-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![4, 256, 256]⟩ ⟨3, ![4, 512, 256]⟩ (Layout.meshBlock [2, 2] ![[], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.blockN ⟨3, ![4, 256, 16]⟩ ⟨3, ![4, 512, 16]⟩ (Layout.meshBlock [2, 2] ![[], [1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 256, 16]⟩ ⟨3, ![4, 512, 16]⟩ (Layout.meshBlock [2, 2] ![[], [1], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v10243)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![4, 256, 256]⟩ ⟨3, ![4, 512, 256]⟩ (Layout.meshBlock [2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10243) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x256x256 : Shape := ⟨3, ![4, 256, 256]⟩
abbrev S256x16 : Shape := ⟨2, ![256, 16]⟩
abbrev S4x256x16 : Shape := ⟨3, ![4, 256, 16]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S256x16 : S_.BroadcastsInDim S256x16 (![] : Fin 0 → Fin S256x16.rank)
  reducesTo_S256x16_S_d0_1 : S256x16.ReducesTo [0, 1] S_
  bcast_S_S4x256x16 : S_.BroadcastsInDim S4x256x16 (![] : Fin 0 → Fin S4x256x16.rank)
  reducesTo_S4x256x16_S_d0_1_2 : S4x256x16.ReducesTo [0, 1, 2] S_

variable [Facts]

def fn_part1 {F : FTy → Type} [FloatOps F] (main_v13 : IVec S_ 1) (main_v16 : IVec S4x256x16 1) : IVec S_ 1 :=
  let main_c_5 : IVec S_ 1 := constantI S_ 1 1#1
  let main_v17 : IVec S_ 1 := (fun x v => Host.reduce IntOp.andi x v reducesTo_S4x256x16_S_d0_1_2 h_S_) main_v16 main_c_5
  let main_v18 : IVec S_ 1 := andi main_v13 main_v17
  main_v18

def fn {F : FTy → Type} [FloatOps F] (main_arg0 : FVec F S4x256x256 .f32) (main_arg1 : FVec F S256x16 .f32) (main_arg2 : FVec F S4x256x16 .f32) (main_arg3 : FVec F S4x256x16 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S4x256x16 .f32 := Host.absf main_arg2
  let main_cst_2 : FVec F S_ .f32 := constant S_ .f32 0x7F800000#32
  let main_v10 : FVec F S4x256x16 .f32 := broadcastInDim S4x256x16 ![] bcast_S_S4x256x16 main_cst_2
  let main_v11 : IVec S4x256x16 1 := cmpf .olt main_v9 main_v10
  let main_c_3 : IVec S_ 1 := constantI S_ 1 1#1
  let main_v12 : IVec S_ 1 := (fun x v => Host.reduce IntOp.andi x v reducesTo_S4x256x16_S_d0_1_2 h_S_) main_v11 main_c_3
  let main_v13 : IVec S_ 1 := andi main_v8 main_v12
  let main_v14 : FVec F S4x256x16 .f32 := Host.absf main_arg3
  let main_cst_4 : FVec F S_ .f32 := constant S_ .f32 0x7F800000#32
  let main_v15 : FVec F S4x256x16 .f32 := broadcastInDim S4x256x16 ![] bcast_S_S4x256x16 main_cst_4
  let main_v16 : IVec S4x256x16 1 := cmpf .olt main_v14 main_v15
  fn_part1 (F := F) main_v13 main_v16
-- ==== Pre_finite_inputs_ReferenceIdeal.lean ====
abbrev S4x512x256 : Shape := ⟨3, ![4, 512, 256]⟩
abbrev S256x16 : Shape := ⟨2, ![256, 16]⟩
abbrev S4x512x16 : Shape := ⟨3, ![4, 512, 16]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S256x16 : S_.BroadcastsInDim S256x16 (![] : Fin 0 → Fin S256x16.rank)
  reducesTo_S256x16_S_d0_1 : S256x16.ReducesTo [0, 1] S_
  bcast_S_S4x512x16 : S_.BroadcastsInDim S4x512x16 (![] : Fin 0 → Fin S4x512x16.rank)
  reducesTo_S4x512x16_S_d0_1_2 : S4x512x16.ReducesTo [0, 1, 2] S_

variable [Facts]

def fn_part1 {F : FTy → Type} [FloatOps F] (main_v13 : IVec S_ 1) (main_v16 : IVec S4x512x16 1) : IVec S_ 1 :=
  let main_c_5 : IVec S_ 1 := constantI S_ 1 1#1
  let main_v17 : IVec S_ 1 := (fun x v => Host.reduce IntOp.andi x v reducesTo_S4x512x16_S_d0_1_2 h_S_) main_v16 main_c_5
  let main_v18 : IVec S_ 1 := andi main_v13 main_v17
  main_v18

def fn {F : FTy → Type} [FloatOps F] (main_arg0 : FVec F S4x512x256 .f32) (main_arg1 : FVec F S256x16 .f32) (main_arg2 : FVec F S4x512x16 .f32) (main_arg3 : FVec F S4x512x16 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S4x512x16 .f32 := Host.absf main_arg2
  let main_cst_2 : FVec F S_ .f32 := constant S_ .f32 0x7F800000#32
  let main_v10 : FVec F S4x512x16 .f32 := broadcastInDim S4x512x16 ![] bcast_S_S4x512x16 main_cst_2
  let main_v11 : IVec S4x512x16 1 := cmpf .olt main_v9 main_v10
  let main_c_3 : IVec S_ 1 := constantI S_ 1 1#1
  let main_v12 : IVec S_ 1 := (fun x v => Host.reduce IntOp.andi x v reducesTo_S4x512x16_S_d0_1_2 h_S_) main_v11 main_c_3
  let main_v13 : IVec S_ 1 := andi main_v8 main_v12
  let main_v14 : FVec F S4x512x16 .f32 := Host.absf main_arg3
  let main_cst_4 : FVec F S_ .f32 := constant S_ .f32 0x7F800000#32
  let main_v15 : FVec F S4x512x16 .f32 := broadcastInDim S4x512x16 ![] bcast_S_S4x512x16 main_cst_4
  let main_v16 : IVec S4x512x16 1 := cmpf .olt main_v14 main_v15
  fn_part1 (F := F) main_v13 main_v16
-- ==== Kernel.lean ====
abbrev S4x256x256 : Shape := ⟨3, ![4, 256, 256]⟩
abbrev S256x16 : Shape := ⟨2, ![256, 16]⟩
abbrev S4x256x16 : Shape := ⟨3, ![4, 256, 16]⟩
abbrev S2x16x16x16x256 : Shape := ⟨5, ![2, 16, 16, 16, 256]⟩
abbrev S2x16x256 : Shape := ⟨3, ![2, 16, 256]⟩
abbrev S2x256x256 : Shape := ⟨3, ![2, 256, 256]⟩
abbrev S_ : Shape := ⟨0, ![]⟩
abbrev S8 : Shape := ⟨1, ![8]⟩
abbrev S16x256 : Shape := ⟨2, ![16, 256]⟩
abbrev S2x256x16 : Shape := ⟨3, ![2, 256, 16]⟩
abbrev S2x1x256x256 : Shape := ⟨4, ![2, 1, 256, 256]⟩
abbrev S2x16x256x1 : Shape := ⟨4, ![2, 16, 256, 1]⟩
abbrev S2x16x256x256 : Shape := ⟨4, ![2, 16, 256, 256]⟩
abbrev S2x16x16x15x256 : Shape := ⟨5, ![2, 16, 16, 15, 256]⟩
abbrev S1x16x1x1x256 : Shape := ⟨5, ![1, 16, 1, 1, 256]⟩
abbrev S2x16x16x14x256 : Shape := ⟨5, ![2, 16, 16, 14, 256]⟩
abbrev S2x16x16x12x256 : Shape := ⟨5, ![2, 16, 16, 12, 256]⟩
abbrev S2x16x16x8x256 : Shape := ⟨5, ![2, 16, 16, 8, 256]⟩
abbrev S2x16x16x1x256 : Shape := ⟨5, ![2, 16, 16, 1, 256]⟩
abbrev S2x16x16x256 : Shape := ⟨4, ![2, 16, 16, 256]⟩
abbrev S2x16x1x256 : Shape := ⟨4, ![2, 16, 1, 256]⟩
abbrev S2x16x15x256 : Shape := ⟨4, ![2, 16, 15, 256]⟩
abbrev S1x16x1x256 : Shape := ⟨4, ![1, 16, 1, 256]⟩
abbrev S2x16x2x256 : Shape := ⟨4, ![2, 16, 2, 256]⟩
abbrev S2x16x14x256 : Shape := ⟨4, ![2, 16, 14, 256]⟩
abbrev S2x16x4x256 : Shape := ⟨4, ![2, 16, 4, 256]⟩
abbrev S2x16x12x256 : Shape := ⟨4, ![2, 16, 12, 256]⟩
abbrev S2x16x8x256 : Shape := ⟨4, ![2, 16, 8, 256]⟩
abbrev S2x16x16x16 : Shape := ⟨4, ![2, 16, 16, 16]⟩
abbrev S16x16x256 : Shape := ⟨3, ![16, 16, 256]⟩
abbrev S16x1x256 : Shape := ⟨3, ![16, 1, 256]⟩
abbrev S1x16x16x256 : Shape := ⟨4, ![1, 16, 16, 256]⟩
abbrev S1x16x16x16x256 : Shape := ⟨5, ![1, 16, 16, 16, 256]⟩
abbrev S16x16x16x256 : Shape := ⟨4, ![16, 16, 16, 256]⟩
abbrev S16x4x16x256 : Shape := ⟨4, ![16, 4, 16, 256]⟩
abbrev S16x1x16x256 : Shape := ⟨4, ![16, 1, 16, 256]⟩
abbrev S16x4x256 : Shape := ⟨3, ![16, 4, 256]⟩
abbrev S16x4x1x256 : Shape := ⟨4, ![16, 4, 1, 256]⟩
abbrev S1x16x16x16 : Shape := ⟨4, ![1, 16, 16, 16]⟩
abbrev S16x16x16 : Shape := ⟨3, ![16, 16, 16]⟩
abbrev S16x4x16 : Shape := ⟨3, ![16, 4, 16]⟩
abbrev S16x4x16x1 : Shape := ⟨4, ![16, 4, 16, 1]⟩
abbrev S4x16x256 : Shape := ⟨3, ![4, 16, 256]⟩
abbrev S64x256 : Shape := ⟨2, ![64, 256]⟩
abbrev S1x64x256 : Shape := ⟨3, ![1, 64, 256]⟩
abbrev S1 : Shape := ⟨1, ![1]⟩

abbrev nBuf : Space → Nat
  | .hbm => 5
  | .vmem => 10
  | .smem => 0
  | _ => 0

abbrev bufTy : (tb : Table) → Fin (tcTables nBuf tb) → BufTy
  | .hbm, ⟨0, _⟩ => ⟨S4x256x256, .f32⟩
  | .hbm, ⟨1, _⟩ => ⟨S256x16, .f32⟩
  | .hbm, ⟨2, _⟩ => ⟨S4x256x16, .f32⟩
  | .hbm, ⟨3, _⟩ => ⟨S4x256x16, .f32⟩
  | .hbm, ⟨4, _⟩ => ⟨S4x256x256, .f32⟩
  | .local _ .vmem, ⟨0, _⟩ => ⟨S4x256x256, .f32⟩
  | .local _ .vmem, ⟨1, _⟩ => ⟨S256x16, .f32⟩
  | .local _ .vmem, ⟨2, _⟩ => ⟨S4x256x16, .f32⟩
  | .local _ .vmem, ⟨3, _⟩ => ⟨S4x256x16, .f32⟩
  | .local _ .vmem, ⟨4, _⟩ => ⟨S4x256x256, .f32⟩
  | .local _ .vmem, ⟨5, _⟩ => ⟨S2x16x16x16x256, .f32⟩
  | .local _ .vmem, ⟨6, _⟩ => ⟨S2x16x256, .f32⟩
  | .local _ .vmem, ⟨7, _⟩ => ⟨S2x16x256, .f32⟩
  | .local _ .vmem, ⟨8, _⟩ => ⟨S2x256x256, .bf16⟩
  | .local _ .vmem, ⟨9, _⟩ => ⟨S2x256x256, .bf16⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  { ofTc nBuf bufTy 1 23 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v12 : BitVec 32 := Scalar.muli v2 c2_i32_8
  let v13 : BitVec 32 := Scalar.addi c0_i32 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_9 : BitVec 32 := 1#32
  let v14 : BitVec 32 := Scalar.muli v6 c1_i32_9
  let v15 : BitVec 32 := Scalar.addi v13 v14
  v15.toNat
def k0_dev2 (d0 : Dev nD) : Nat :=
  let c0_i32_12 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_11 : BitVec 32 := 2#32
  let v16 : BitVec 32 := Scalar.muli v7 c2_i32_11
  let v17 : BitVec 32 := Scalar.addi c0_i32_12 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v18 : BitVec 32 := Scalar.muli v5 c1_i32_13
  let v19 : BitVec 32 := Scalar.addi v17 v18
  v19.toNat
def k0_off1 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v23 : Index := Scalar.indexCast v8
  let c0_16 : Index := 0#32
  let c0_17 : Index := 0#32
  ![v23.toNat, 0, 0]
def k0_off2 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v26 : Index := Scalar.indexCast v8
  let c0_18 : Index := 0#32
  let c0_19 : Index := 0#32
  ![v26.toNat, 0, 0]
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_92 : BitVec 32 := 0#32
  let v133 : BitVec 1 := Scalar.cmpi .eq v5 c0_i32_92
  let v134 : BitVec 32 := Scalar.extui v133
  let c0_i32_93 : BitVec 32 := 0#32
  let v135 : BitVec 1 := Scalar.cmpi .ne v134 c0_i32_93
  v135

def k0_dev3 (d0 : Dev nD) : Nat :=
  let c0_i32_447 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_446 : BitVec 32 := 2#32
  let v639 : BitVec 32 := Scalar.muli v2 c2_i32_446
  let v640 : BitVec 32 := Scalar.addi c0_i32_447 v639
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_448 : BitVec 32 := 1#32
  let v641 : BitVec 32 := Scalar.muli v6 c1_i32_448
  let v642 : BitVec 32 := Scalar.addi v640 v641
  v642.toNat
def k0_off3 (d0 : Dev nD) (c0_i32_109 : BitVec 32) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v191 : BitVec 32 := Scalar.addi v8 c0_i32_109
  let v192 : Index := Scalar.indexCast v191
  let c0_110 : Index := 0#32
  let c0_111 : Index := 0#32
  ![v192.toNat, 0, 0]
def k0_dev4 (d0 : Dev nD) : Nat :=
  let c0_i32_120 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_119 : BitVec 32 := 2#32
  let v200 : BitVec 32 := Scalar.muli v7 c2_i32_119
  let v201 : BitVec 32 := Scalar.addi c0_i32_120 v200
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v202 : BitVec 32 := Scalar.muli v5 c1_i32_121
  let v203 : BitVec 32 := Scalar.addi v201 v202
  v203.toNat
def k0_off4 (d0 : Dev nD) (c0_i32_132 : BitVec 32) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v232 : BitVec 32 := Scalar.addi v8 c0_i32_132
  let v233 : Index := Scalar.indexCast v232
  let c64 : Index := 64#32
  let c0_133 : Index := 0#32
  ![v233.toNat, 64, 0]
def k0_dev5 (d0 : Dev nD) : Nat :=
  let c0_i32_142 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_141 : BitVec 32 := 2#32
  let v241 : BitVec 32 := Scalar.muli v7 c2_i32_141
  let v242 : BitVec 32 := Scalar.addi c0_i32_142 v241
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_143 : BitVec 32 := 1#32
  let v243 : BitVec 32 := Scalar.muli v5 c1_i32_143
  let v244 : BitVec 32 := Scalar.addi v242 v243
  v244.toNat
def k0_off5 (d0 : Dev nD) (c0_i32_153 : BitVec 32) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v273 : BitVec 32 := Scalar.addi v8 c0_i32_153
  let v274 : Index := Scalar.indexCast v273
  let c128 : Index := 128#32
  let c0_154 : Index := 0#32
  ![v274.toNat, 128, 0]
def k0_dev6 (d0 : Dev nD) : Nat :=
  let c0_i32_163 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_162 : BitVec 32 := 2#32
  let v282 : BitVec 32 := Scalar.muli v7 c2_i32_162
  let v283 : BitVec 32 := Scalar.addi c0_i32_163 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_164 : BitVec 32 := 1#32
  let v284 : BitVec 32 := Scalar.muli v5 c1_i32_164
  let v285 : BitVec 32 := Scalar.addi v283 v284
  v285.toNat
def k0_off6 (d0 : Dev nD) (c0_i32_174 : BitVec 32) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v314 : BitVec 32 := Scalar.addi v8 c0_i32_174
  let v315 : Index := Scalar.indexCast v314
  let c192 : Index := 192#32
  let c0_175 : Index := 0#32
  ![v315.toNat, 192, 0]
def k0_dev7 (d0 : Dev nD) : Nat :=
  let c0_i32_183 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_182 : BitVec 32 := 2#32
  let v323 : BitVec 32 := Scalar.muli v7 c2_i32_182
  let v324 : BitVec 32 := Scalar.addi c0_i32_183 v323
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_184 : BitVec 32 := 1#32
  let v325 : BitVec 32 := Scalar.muli v5 c1_i32_184
  let v326 : BitVec 32 := Scalar.addi v324 v325
  v326.toNat
def k0_dev8 (d0 : Dev nD) : Nat :=
  let c0_i32_204 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_203 : BitVec 32 := 2#32
  let v364 : BitVec 32 := Scalar.muli v7 c2_i32_203
  let v365 : BitVec 32 := Scalar.addi c0_i32_204 v364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_205 : BitVec 32 := 1#32
  let v366 : BitVec 32 := Scalar.muli v5 c1_i32_205
  let v367 : BitVec 32 := Scalar.addi v365 v366
  v367.toNat
def k0_dev9 (d0 : Dev nD) : Nat :=
  let c0_i32_226 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_225 : BitVec 32 := 2#32
  let v405 : BitVec 32 := Scalar.muli v7 c2_i32_225
  let v406 : BitVec 32 := Scalar.addi c0_i32_226 v405
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_227 : BitVec 32 := 1#32
  let v407 : BitVec 32 := Scalar.muli v5 c1_i32_227
  let v408 : BitVec 32 := Scalar.addi v406 v407
  v408.toNat
def k0_dev10 (d0 : Dev nD) : Nat :=
  let c0_i32_248 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_247 : BitVec 32 := 2#32
  let v446 : BitVec 32 := Scalar.muli v7 c2_i32_247
  let v447 : BitVec 32 := Scalar.addi c0_i32_248 v446
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_249 : BitVec 32 := 1#32
  let v448 : BitVec 32 := Scalar.muli v5 c1_i32_249
  let v449 : BitVec 32 := Scalar.addi v447 v448
  v449.toNat
def k0_dev11 (d0 : Dev nD) : Nat :=
  let c0_i32_270 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_269 : BitVec 32 := 2#32
  let v487 : BitVec 32 := Scalar.muli v7 c2_i32_269
  let v488 : BitVec 32 := Scalar.addi c0_i32_270 v487
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_271 : BitVec 32 := 1#32
  let v489 : BitVec 32 := Scalar.muli v5 c1_i32_271
  let v490 : BitVec 32 := Scalar.addi v488 v489
  v490.toNat
def k0_off7 (d0 : Dev nD) : Fin 3 → Nat :=
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_5 v2
  let c2_i32_6 : BitVec 32 := 2#32
  let v10 : BitVec 32 := Scalar.muli v9 c2_i32_6
  let v632 : Index := Scalar.indexCast v10
  let c0_441 : Index := 0#32
  let c0_442 : Index := 0#32
  ![v632.toNat, 0, 0]
abbrev stage0_0 : Fin 1 → Memref sig .tc .vmem S4x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  hamt_2 : (2#32 : BitVec 32).msb = false
  inb_S256x16_S256x16_0_0 : ∀ a, (![0, 0] : Fin 2 → Nat) a + S256x16.size a ≤ S256x16.size a
  h_S256x16 : 0 < S256x16.numel
  shapeCasts_S256x16_S256x16 : S256x16.ShapeCasts S256x16
  transposes_S256x16_p1_0_S16x256 : S256x16.Transposes [1, 0] S16x256
  h_S2x256x256 : 0 < S2x256x256.numel
  shapeCasts_S2x256x256_S2x256x256 : S2x256x256.ShapeCasts S2x256x256
  h_S2x256x16 : 0 < S2x256x16.numel
  shapeCasts_S2x256x16_S2x256x16 : S2x256x16.ShapeCasts S2x256x16
  transposes_S2x256x16_p0_2_1_S2x16x256 : S2x256x16.Transposes [0, 2, 1] S2x16x256
  shapeCasts_S2x256x256_S2x1x256x256 : S2x256x256.ShapeCasts S2x1x256x256
  shapeCasts_S2x16x256_S2x16x256x1 : S2x16x256.ShapeCasts S2x16x256x1
  broadcasts_S2x1x256x256_S2x16x256x256 : S2x1x256x256.Broadcasts S2x16x256x256
  broadcasts_S2x16x256x1_S2x16x256x256 : S2x16x256x1.Broadcasts S2x16x256x256
  shapeCasts_S2x16x256x256_S2x16x16x16x256 : S2x16x256x256.ShapeCasts S2x16x16x16x256
  inb_S2x16x16x16x256_S2x16x16x16x256_0_0_0_0_0 : ∀ a, (![0, 0, 0, 0, 0] : Fin 5 → Nat) a + S2x16x16x16x256.size a ≤ S2x16x16x16x256.size a
  h_S2x16x16x16x256 : 0 < S2x16x16x16x256.numel
  shapeCasts_S2x16x16x16x256_S2x16x16x16x256 : S2x16x16x16x256.ShapeCasts S2x16x16x16x256
  inb_S2x16x16x16x256_S2x16x16x15x256_0_0_0_1_0 : ∀ a, (![0, 0, 0, 1, 0] : Fin 5 → Nat) a + S2x16x16x15x256.size a ≤ S2x16x16x16x256.size a
  h_S2x16x16x15x256 : 0 < S2x16x16x15x256.numel
  shapeCasts_S16x256_S1x16x1x1x256 : S16x256.ShapeCasts S1x16x1x1x256
  inb_S2x16x16x16x256_S2x16x16x15x256_0_0_0_0_0 : ∀ a, (![0, 0, 0, 0, 0] : Fin 5 → Nat) a + S2x16x16x15x256.size a ≤ S2x16x16x16x256.size a
  broadcasts_S1x16x1x1x256_S2x16x16x15x256 : S1x16x1x1x256.Broadcasts S2x16x16x15x256
  shapeCasts_S2x16x16x15x256_S2x16x16x15x256 : S2x16x16x15x256.ShapeCasts S2x16x16x15x256
  inb_S2x16x16x16x256_S2x16x16x14x256_0_0_0_2_0 : ∀ a, (![0, 0, 0, 2, 0] : Fin 5 → Nat) a + S2x16x16x14x256.size a ≤ S2x16x16x16x256.size a
  h_S2x16x16x14x256 : 0 < S2x16x16x14x256.numel
  inb_S2x16x16x16x256_S2x16x16x14x256_0_0_0_0_0 : ∀ a, (![0, 0, 0, 0, 0] : Fin 5 → Nat) a + S2x16x16x14x256.size a ≤ S2x16x16x16x256.size a
  broadcasts_S1x16x1x1x256_S2x16x16x14x256 : S1x16x1x1x256.Broadcasts S2x16x16x14x256
  shapeCasts_S2x16x16x14x256_S2x16x16x14x256 : S2x16x16x14x256.ShapeCasts S2x16x16x14x256
  inb_S2x16x16x16x256_S2x16x16x12x256_0_0_0_4_0 : ∀ a, (![0, 0, 0, 4, 0] : Fin 5 → Nat) a + S2x16x16x12x256.size a ≤ S2x16x16x16x256.size a
  h_S2x16x16x12x256 : 0 < S2x16x16x12x256.numel
  inb_S2x16x16x16x256_S2x16x16x12x256_0_0_0_0_0 : ∀ a, (![0, 0, 0, 0, 0] : Fin 5 → Nat) a + S2x16x16x12x256.size a ≤ S2x16x16x16x256.size a
  broadcasts_S1x16x1x1x256_S2x16x16x12x256 : S1x16x1x1x256.Broadcasts S2x16x16x12x256
  shapeCasts_S2x16x16x12x256_S2x16x16x12x256 : S2x16x16x12x256.ShapeCasts S2x16x16x12x256
  inb_S2x16x16x16x256_S2x16x16x8x256_0_0_0_8_0 : ∀ a, (![0, 0, 0, 8, 0] : Fin 5 → Nat) a + S2x16x16x8x256.size a ≤ S2x16x16x16x256.size a
  h_S2x16x16x8x256 : 0 < S2x16x16x8x256.numel
  inb_S2x16x16x16x256_S2x16x16x8x256_0_0_0_0_0 : ∀ a, (![0, 0, 0, 0, 0] : Fin 5 → Nat) a + S2x16x16x8x256.size a ≤ S2x16x16x16x256.size a
  broadcasts_S1x16x1x1x256_S2x16x16x8x256 : S1x16x1x1x256.Broadcasts S2x16x16x8x256
  shapeCasts_S2x16x16x8x256_S2x16x16x8x256 : S2x16x16x8x256.ShapeCasts S2x16x16x8x256
  inb_S2x16x16x16x256_S2x16x16x1x256_0_0_0_15_0 : ∀ a, (![0, 0, 0, 15, 0] : Fin 5 → Nat) a + S2x16x16x1x256.size a ≤ S2x16x16x16x256.size a
  h_S2x16x16x1x256 : 0 < S2x16x16x1x256.numel
  shapeCasts_S2x16x16x1x256_S2x16x16x256 : S2x16x16x1x256.ShapeCasts S2x16x16x256
  slices_S2x16x16x256_o0_0_0_0_S2x16x1x256 : S2x16x16x256.Slices ![0, 0, 0, 0] S2x16x1x256
  slices_S2x16x16x256_o0_0_1_0_S2x16x15x256 : S2x16x16x256.Slices ![0, 0, 1, 0] S2x16x15x256
  shapeCasts_S16x256_S1x16x1x256 : S16x256.ShapeCasts S1x16x1x256
  slices_S2x16x16x256_o0_0_0_0_S2x16x15x256 : S2x16x16x256.Slices ![0, 0, 0, 0] S2x16x15x256
  broadcasts_S1x16x1x256_S2x16x15x256 : S1x16x1x256.Broadcasts S2x16x15x256
  concatenates_S2x16x1x256_S2x16x15x256_S2x16x16x256_d2 : Shape.Concatenates [S2x16x1x256, S2x16x15x256] S2x16x16x256 2
  slices_S2x16x16x256_o0_0_0_0_S2x16x2x256 : S2x16x16x256.Slices ![0, 0, 0, 0] S2x16x2x256
  slices_S2x16x16x256_o0_0_2_0_S2x16x14x256 : S2x16x16x256.Slices ![0, 0, 2, 0] S2x16x14x256
  slices_S2x16x16x256_o0_0_0_0_S2x16x14x256 : S2x16x16x256.Slices ![0, 0, 0, 0] S2x16x14x256
  broadcasts_S1x16x1x256_S2x16x14x256 : S1x16x1x256.Broadcasts S2x16x14x256
  concatenates_S2x16x2x256_S2x16x14x256_S2x16x16x256_d2 : Shape.Concatenates [S2x16x2x256, S2x16x14x256] S2x16x16x256 2
  slices_S2x16x16x256_o0_0_0_0_S2x16x4x256 : S2x16x16x256.Slices ![0, 0, 0, 0] S2x16x4x256
  slices_S2x16x16x256_o0_0_4_0_S2x16x12x256 : S2x16x16x256.Slices ![0, 0, 4, 0] S2x16x12x256
  slices_S2x16x16x256_o0_0_0_0_S2x16x12x256 : S2x16x16x256.Slices ![0, 0, 0, 0] S2x16x12x256
  broadcasts_S1x16x1x256_S2x16x12x256 : S1x16x1x256.Broadcasts S2x16x12x256
  concatenates_S2x16x4x256_S2x16x12x256_S2x16x16x256_d2 : Shape.Concatenates [S2x16x4x256, S2x16x12x256] S2x16x16x256 2
  slices_S2x16x16x256_o0_0_0_0_S2x16x8x256 : S2x16x16x256.Slices ![0, 0, 0, 0] S2x16x8x256
  slices_S2x16x16x256_o0_0_8_0_S2x16x8x256 : S2x16x16x256.Slices ![0, 0, 8, 0] S2x16x8x256
  broadcasts_S1x16x1x256_S2x16x8x256 : S1x16x1x256.Broadcasts S2x16x8x256
  concatenates_S2x16x8x256_S2x16x8x256_S2x16x16x256_d2 : Shape.Concatenates [S2x16x8x256, S2x16x8x256] S2x16x16x256 2
  slices_S2x16x16x256_o0_0_15_0_S2x16x1x256 : S2x16x16x256.Slices ![0, 0, 15, 0] S2x16x1x256
  shapeCasts_S2x16x1x256_S2x16x256 : S2x16x1x256.ShapeCasts S2x16x256
  inb_S2x16x256_S2x16x256_0_0_0 : ∀ a, (![0, 0, 0] : Fin 3 → Nat) a + S2x16x256.size a ≤ S2x16x256.size a
  h_S2x16x256 : 0 < S2x16x256.numel
  shapeCasts_S2x16x256_S2x16x256 : S2x16x256.ShapeCasts S2x16x256
  shapeCasts_S2x16x256_S2x16x16x16 : S2x16x256.ShapeCasts S2x16x16x16
  iota_S16x16x256_d1_w32 : S16x16x256.Iotas .tc 32 [1]
  shapeCasts_S16x256_S16x1x256 : S16x256.ShapeCasts S16x1x256
  broadcasts_S16x1x256_S16x16x256 : S16x1x256.Broadcasts S16x16x256
  shapeCasts_S16x16x256_S1x16x16x256 : S16x16x256.ShapeCasts S1x16x16x256
  shapeCasts_S2x16x256_S2x16x1x256 : S2x16x256.ShapeCasts S2x16x1x256
  broadcasts_S1x16x16x256_S2x16x16x256 : S1x16x16x256.Broadcasts S2x16x16x256
  broadcasts_S2x16x1x256_S2x16x16x256 : S2x16x1x256.Broadcasts S2x16x16x256
  inb_S2x16x16x16x256_S1x16x16x16x256_0_0_0_0_0 : ∀ a, (![0, 0, 0, 0, 0] : Fin 5 → Nat) a + S1x16x16x16x256.size a ≤ S2x16x16x16x256.size a
  h_S1x16x16x16x256 : 0 < S1x16x16x16x256.numel
  shapeCasts_S1x16x16x16x256_S16x16x16x256 : S1x16x16x16x256.ShapeCasts S16x16x16x256
  slices_S16x16x16x256_o0_0_0_0_S16x4x16x256 : S16x16x16x256.Slices ![0, 0, 0, 0] S16x4x16x256
  shapeCasts_S16x16x256_S16x1x16x256 : S16x16x256.ShapeCasts S16x1x16x256
  slices_S2x16x16x256_o0_0_0_0_S1x16x16x256 : S2x16x16x256.Slices ![0, 0, 0, 0] S1x16x16x256
  shapeCasts_S1x16x16x256_S16x16x256 : S1x16x16x256.ShapeCasts S16x16x256
  slices_S16x16x256_o0_0_0_S16x4x256 : S16x16x256.Slices ![0, 0, 0] S16x4x256
  shapeCasts_S16x4x256_S16x4x1x256 : S16x4x256.ShapeCasts S16x4x1x256
  broadcasts_S16x1x16x256_S16x4x16x256 : S16x1x16x256.Broadcasts S16x4x16x256
  broadcasts_S16x4x1x256_S16x4x16x256 : S16x4x1x256.Broadcasts S16x4x16x256
  slices_S2x16x16x16_o0_0_0_0_S1x16x16x16 : S2x16x16x16.Slices ![0, 0, 0, 0] S1x16x16x16
  shapeCasts_S1x16x16x16_S16x16x16 : S1x16x16x16.ShapeCasts S16x16x16
  slices_S16x16x16_o0_0_0_S16x4x16 : S16x16x16.Slices ![0, 0, 0] S16x4x16
  shapeCasts_S16x4x16_S16x4x16x1 : S16x4x16.ShapeCasts S16x4x16x1
  broadcasts_S16x4x16x1_S16x4x16x256 : S16x4x16x1.Broadcasts S16x4x16x256
  reduces_S16x4x16x256_S4x16x256 : S16x4x16x256.Reduces [0] S4x16x256
  shapeCasts_S4x16x256_S64x256 : S4x16x256.ShapeCasts S64x256
  h_S1x64x256 : 0 < S1x64x256.numel
  shapeCasts_S1x64x256_S64x256 : S1x64x256.ShapeCasts S64x256
  shapeCasts_S64x256_S1x64x256 : S64x256.ShapeCasts S1x64x256
  bitsLt_bf16_f32 : FTy.bits .bf16 < FTy.bits .f32
  inb_S2x256x256_S1x64x256_0_0_0 : ∀ a, (![0, 0, 0] : Fin 3 → Nat) a + S1x64x256.size a ≤ S2x256x256.size a
  packedbf16_S2x256x256_S1x64x256_0_0_0 : (Rect.unit (s := S2x256x256) ![0, 0, 0] S1x64x256.size inb_S2x256x256_S1x64x256_0_0_0).PackedRows (EltTy.packing .bf16)
  inb_S8_S1_0 : ∀ a, (![0] : Fin 1 → Nat) a + S1.size a ≤ S8.size a
  squeezes_S1_S_ : S1.Squeezes S_
  squeezes_S1x64x256_S64x256 : S1x64x256.Squeezes S64x256
  wordsbf16_S2x256x256_S1x64x256_0_0_0 : (Rect.unit (s := S2x256x256) ![0, 0, 0] S1x64x256.size inb_S2x256x256_S1x64x256_0_0_0).WholeWords (EltTy.packing .bf16)
  slices_S16x16x16x256_o0_4_0_0_S16x4x16x256 : S16x16x16x256.Slices ![0, 4, 0, 0] S16x4x16x256
  slices_S16x16x256_o0_4_0_S16x4x256 : S16x16x256.Slices ![0, 4, 0] S16x4x256
  slices_S16x16x16_o0_4_0_S16x4x16 : S16x16x16.Slices ![0, 4, 0] S16x4x16
  inb_S2x256x256_S1x64x256_0_64_0 : ∀ a, (![0, 64, 0] : Fin 3 → Nat) a + S1x64x256.size a ≤ S2x256x256.size a
  packedbf16_S2x256x256_S1x64x256_0_64_0 : (Rect.unit (s := S2x256x256) ![0, 64, 0] S1x64x256.size inb_S2x256x256_S1x64x256_0_64_0).PackedRows (EltTy.packing .bf16)
  inb_S8_S1_1 : ∀ a, (![1] : Fin 1 → Nat) a + S1.size a ≤ S8.size a
  wordsbf16_S2x256x256_S1x64x256_0_64_0 : (Rect.unit (s := S2x256x256) ![0, 64, 0] S1x64x256.size inb_S2x256x256_S1x64x256_0_64_0).WholeWords (EltTy.packing .bf16)
  slices_S16x16x16x256_o0_8_0_0_S16x4x16x256 : S16x16x16x256.Slices ![0, 8, 0, 0] S16x4x16x256
  slices_S16x16x256_o0_8_0_S16x4x256 : S16x16x256.Slices ![0, 8, 0] S16x4x256
  slices_S16x16x16_o0_8_0_S16x4x16 : S16x16x16.Slices ![0, 8, 0] S16x4x16
  inb_S2x256x256_S1x64x256_0_128_0 : ∀ a, (![0, 128, 0] : Fin 3 → Nat) a + S1x64x256.size a ≤ S2x256x256.size a
  packedbf16_S2x256x256_S1x64x256_0_128_0 : (Rect.unit (s := S2x256x256) ![0, 128, 0] S1x64x256.size inb_S2x256x256_S1x64x256_0_128_0).PackedRows (EltTy.packing .bf16)
  inb_S8_S1_2 : ∀ a, (![2] : Fin 1 → Nat) a + S1.size a ≤ S8.size a
  wordsbf16_S2x256x256_S1x64x256_0_128_0 : (Rect.unit (s := S2x256x256) ![0, 128, 0] S1x64x256.size inb_S2x256x256_S1x64x256_0_128_0).WholeWords (EltTy.packing .bf16)
  slices_S16x16x16x256_o0_12_0_0_S16x4x16x256 : S16x16x16x256.Slices ![0, 12, 0, 0] S16x4x16x256
  slices_S16x16x256_o0_12_0_S16x4x256 : S16x16x256.Slices ![0, 12, 0] S16x4x256
  slices_S16x16x16_o0_12_0_S16x4x16 : S16x16x16.Slices ![0, 12, 0] S16x4x16
  inb_S2x256x256_S1x64x256_0_192_0 : ∀ a, (![0, 192, 0] : Fin 3 → Nat) a + S1x64x256.size a ≤ S2x256x256.size a
  packedbf16_S2x256x256_S1x64x256_0_192_0 : (Rect.unit (s := S2x256x256) ![0, 192, 0] S1x64x256.size inb_S2x256x256_S1x64x256_0_192_0).PackedRows (EltTy.packing .bf16)
  inb_S8_S1_3 : ∀ a, (![3] : Fin 1 → Nat) a + S1.size a ≤ S8.size a
  wordsbf16_S2x256x256_S1x64x256_0_192_0 : (Rect.unit (s := S2x256x256) ![0, 192, 0] S1x64x256.size inb_S2x256x256_S1x64x256_0_192_0).WholeWords (EltTy.packing .bf16)
  inb_S2x16x16x16x256_S1x16x16x16x256_1_0_0_0_0 : ∀ a, (![1, 0, 0, 0, 0] : Fin 5 → Nat) a + S1x16x16x16x256.size a ≤ S2x16x16x16x256.size a
  slices_S2x16x16x256_o1_0_0_0_S1x16x16x256 : S2x16x16x256.Slices ![1, 0, 0, 0] S1x16x16x256
  slices_S2x16x16x16_o1_0_0_0_S1x16x16x16 : S2x16x16x16.Slices ![1, 0, 0, 0] S1x16x16x16
  inb_S2x256x256_S1x64x256_1_0_0 : ∀ a, (![1, 0, 0] : Fin 3 → Nat) a + S1x64x256.size a ≤ S2x256x256.size a
  packedbf16_S2x256x256_S1x64x256_1_0_0 : (Rect.unit (s := S2x256x256) ![1, 0, 0] S1x64x256.size inb_S2x256x256_S1x64x256_1_0_0).PackedRows (EltTy.packing .bf16)
  inb_S8_S1_4 : ∀ a, (![4] : Fin 1 → Nat) a + S1.size a ≤ S8.size a
  wordsbf16_S2x256x256_S1x64x256_1_0_0 : (Rect.unit (s := S2x256x256) ![1, 0, 0] S1x64x256.size inb_S2x256x256_S1x64x256_1_0_0).WholeWords (EltTy.packing .bf16)
  inb_S2x256x256_S1x64x256_1_64_0 : ∀ a, (![1, 64, 0] : Fin 3 → Nat) a + S1x64x256.size a ≤ S2x256x256.size a
  packedbf16_S2x256x256_S1x64x256_1_64_0 : (Rect.unit (s := S2x256x256) ![1, 64, 0] S1x64x256.size inb_S2x256x256_S1x64x256_1_64_0).PackedRows (EltTy.packing .bf16)
  inb_S8_S1_5 : ∀ a, (![5] : Fin 1 → Nat) a + S1.size a ≤ S8.size a
  wordsbf16_S2x256x256_S1x64x256_1_64_0 : (Rect.unit (s := S2x256x256) ![1, 64, 0] S1x64x256.size inb_S2x256x256_S1x64x256_1_64_0).WholeWords (EltTy.packing .bf16)
  inb_S2x256x256_S1x64x256_1_128_0 : ∀ a, (![1, 128, 0] : Fin 3 → Nat) a + S1x64x256.size a ≤ S2x256x256.size a
  packedbf16_S2x256x256_S1x64x256_1_128_0 : (Rect.unit (s := S2x256x256) ![1, 128, 0] S1x64x256.size inb_S2x256x256_S1x64x256_1_128_0).PackedRows (EltTy.packing .bf16)
  inb_S8_S1_6 : ∀ a, (![6] : Fin 1 → Nat) a + S1.size a ≤ S8.size a
  wordsbf16_S2x256x256_S1x64x256_1_128_0 : (Rect.unit (s := S2x256x256) ![1, 128, 0] S1x64x256.size inb_S2x256x256_S1x64x256_1_128_0).WholeWords (EltTy.packing .bf16)
  inb_S2x256x256_S1x64x256_1_192_0 : ∀ a, (![1, 192, 0] : Fin 3 → Nat) a + S1x64x256.size a ≤ S2x256x256.size a
  packedbf16_S2x256x256_S1x64x256_1_192_0 : (Rect.unit (s := S2x256x256) ![1, 192, 0] S1x64x256.size inb_S2x256x256_S1x64x256_1_192_0).PackedRows (EltTy.packing .bf16)
  inb_S8_S1_7 : ∀ a, (![7] : Fin 1 → Nat) a + S1.size a ≤ S8.size a
  wordsbf16_S2x256x256_S1x64x256_1_192_0 : (Rect.unit (s := S2x256x256) ![1, 192, 0] S1x64x256.size inb_S2x256x256_S1x64x256_1_192_0).WholeWords (EltTy.packing .bf16)
  inb_S2x256x256_S2x256x256_0_0_0 : ∀ a, (![0, 0, 0] : Fin 3 → Nat) a + S2x256x256.size a ≤ S2x256x256.size a
  hcc0_scratch5 : 5 + S_.numel ≤ 23
  hcc0_scratch6 : 6 + S_.numel ≤ 23
  hcc0_scratch7 : 7 + S8.numel ≤ 23
  hcc0_scratch8 : 15 + S8.numel ≤ 23
  k0_dev1_lt : ∀ d0 : Dev nD, (k0_dev1 d0) < nD
  k0_dev2_lt : ∀ d0 : Dev nD, (k0_dev2 d0) < nD
  k0_off1_inb : ∀ d0 : Dev nD, ∀ a, (k0_off1 d0) a + S2x256x256.size a ≤ S4x256x256.size a
  k0_off2_inb : ∀ d0 : Dev nD, ∀ a, (k0_off2 d0) a + S2x256x16.size a ≤ S4x256x16.size a
  k0_dev3_lt : ∀ d0 : Dev nD, ∀ (k0_h1 : k0_cond1 d0 = 1#1), (k0_dev3 d0) < nD
  k0_off3_inb : ∀ d0 : Dev nD, ∀ (r : Fin 2), ∀ a, (k0_off3 d0 (BitVec.ofNat 32 r.val)) a + S1x64x256.size a ≤ S4x256x256.size a
  k0_dev4_lt : ∀ d0 : Dev nD, (k0_dev4 d0) < nD
  k0_off4_inb : ∀ d0 : Dev nD, ∀ (r : Fin 2), ∀ a, (k0_off4 d0 (BitVec.ofNat 32 r.val)) a + S1x64x256.size a ≤ S4x256x256.size a
  k0_dev5_lt : ∀ d0 : Dev nD, (k0_dev5 d0) < nD
  k0_off5_inb : ∀ d0 : Dev nD, ∀ (r : Fin 2), ∀ a, (k0_off5 d0 (BitVec.ofNat 32 r.val)) a + S1x64x256.size a ≤ S4x256x256.size a
  k0_dev6_lt : ∀ d0 : Dev nD, (k0_dev6 d0) < nD
  k0_off6_inb : ∀ d0 : Dev nD, ∀ (r : Fin 2), ∀ a, (k0_off6 d0 (BitVec.ofNat 32 r.val)) a + S1x64x256.size a ≤ S4x256x256.size a
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off7_inb : ∀ d0 : Dev nD, ∀ a, (k0_off7 d0) a + S2x256x256.size a ≤ S4x256x256.size a
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch5 : DmaSems sig S_ := SemArray.consecutive 5 S_ hcc0_scratch5
abbrev cc0_scratch6 : DmaSems sig S_ := SemArray.consecutive 6 S_ hcc0_scratch6
abbrev cc0_scratch7 : DmaSems sig S8 := SemArray.consecutive 7 S8 hcc0_scratch7
abbrev cc0_scratch8 : DmaSems sig S8 := SemArray.consecutive 15 S8 hcc0_scratch8

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x256 : Shape := ⟨3, ![4, 512, 256]⟩
abbrev S256x16 : Shape := ⟨2, ![256, 16]⟩
abbrev S4x512x16 : Shape := ⟨3, ![4, 512, 16]⟩
abbrev S_ : Shape := ⟨0, ![]⟩
abbrev S4x256x16 : Shape := ⟨3, ![4, 256, 16]⟩
abbrev S1x256x16 : Shape := ⟨3, ![1, 256, 16]⟩
abbrev S4x1x256 : Shape := ⟨3, ![4, 1, 256]⟩
abbrev S4x256 : Shape := ⟨2, ![4, 256]⟩
abbrev S4x256x1 : Shape := ⟨3, ![4, 256, 1]⟩
abbrev S4x1x16 : Shape := ⟨3, ![4, 1, 16]⟩
abbrev S4x16 : Shape := ⟨2, ![4, 16]⟩
abbrev S1 : Shape := ⟨1, ![1]⟩

abbrev nBuf : Space → Nat
  | .hbm => 11274
  | .vmem => 0
  | .smem => 0
  | _ => 0

abbrev hbmTy0_0 (i : Nat) : BufTy := match i % 128 with
  | 0 => ⟨S4x512x256, .f32⟩
  | 1 => ⟨S256x16, .f32⟩
  | 2 => ⟨S4x512x16, .f32⟩
  | 3 => ⟨S4x512x16, .f32⟩
  | 4 => ⟨S_, .f32⟩
  | 5 => ⟨S4x256x16, .f32⟩
  | 6 => ⟨S_, .f32⟩
  | 7 => ⟨S4x512x256, .f32⟩
  | 8 => ⟨S256x16, .f32⟩
  | 9 => ⟨S1x256x16, .f32⟩
  | 10 => ⟨S4x256x16, .f32⟩
  | 11 => ⟨S4x256x16, .f32⟩
  | 12 => ⟨S4x1x256, .f32⟩
  | 13 => ⟨S4x256, .f32⟩
  | 14 => ⟨S4x256x1, .f32⟩
  | 15 => ⟨S4x1x16, .f32⟩
  | 16 => ⟨S4x16, .f32⟩
  | 17 => ⟨S4x1x16, .f32⟩
  | 18 => ⟨S4x256x16, .f32⟩
  | 19 => ⟨S4x256x16, .f32⟩
  | 20 => ⟨S4x256x16, .f32⟩
  | 21 => ⟨S4x256x16, .f32⟩
  | 22 => ⟨S4x1x16, .f32⟩
  | 23 => ⟨S4x16, .f32⟩
  | 24 => ⟨S4x1x16, .f32⟩
  | 25 => ⟨S4x256x16, .f32⟩
  | 26 => ⟨S4x256x16, .f32⟩
  | 27 => ⟨S_, .f32⟩
  | 28 => ⟨S4x256, .f32⟩
  | 29 => ⟨S_, .i32⟩
  | 30 => ⟨S1, .i32⟩
  | 31 => ⟨S4x512x256, .f32⟩
  | 32 => ⟨S4x256x16, .f32⟩
  | 33 => ⟨S4x256x16, .f32⟩
  | 34 => ⟨S4x1x256, .f32⟩
  | 35 => ⟨S4x256, .f32⟩
  | 36 => ⟨S4x256x1, .f32⟩
  | 37 => ⟨S4x1x16, .f32⟩
  | 38 => ⟨S4x16, .f32⟩
  | 39 => ⟨S4x1x16, .f32⟩
  | 40 => ⟨S4x256x16, .f32⟩
  | 41 => ⟨S4x256x16, .f32⟩
  | 42 => ⟨S4x256x16, .f32⟩
  | 43 => ⟨S4x256x16, .f32⟩
  | 44 => ⟨S4x1x16, .f32⟩
  | 45 => ⟨S4x16, .f32⟩
  | 46 => ⟨S4x1x16, .f32⟩
  | 47 => ⟨S4x256x16, .f32⟩
  | 48 => ⟨S4x256x16, .f32⟩
  | 49 => ⟨S_, .f32⟩
  | 50 => ⟨S4x256, .f32⟩
  | 51 => ⟨S_, .i32⟩
  | 52 => ⟨S1, .i32⟩
  | 53 => ⟨S4x512x256, .f32⟩
  | 54 => ⟨S4x256x16, .f32⟩
  | 55 => ⟨S4x256x16, .f32⟩
  | 56 => ⟨S4x1x256, .f32⟩
  | 57 => ⟨S4x256, .f32⟩
  | 58 => ⟨S4x256x1, .f32⟩
  | 59 => ⟨S4x1x16, .f32⟩
  | 60 => ⟨S4x16, .f32⟩
  | 61 => ⟨S4x1x16, .f32⟩
  | 62 => ⟨S4x256x16, .f32⟩
  | 63 => ⟨S4x256x16, .f32⟩
  | 64 => ⟨S4x256x16, .f32⟩
  | 65 => ⟨S4x256x16, .f32⟩
  | 66 => ⟨S4x1x16, .f32⟩
  | 67 => ⟨S4x16, .f32⟩
  | 68 => ⟨S4x1x16, .f32⟩
  | 69 => ⟨S4x256x16, .f32⟩
  | 70 => ⟨S4x256x16, .f32⟩
  | 71 => ⟨S_, .f32⟩
  | 72 => ⟨S4x256, .f32⟩
  | 73 => ⟨S_, .i32⟩
  | 74 => ⟨S1, .i32⟩
  | 75 => ⟨S4x512x256, .f32⟩
  | 76 => ⟨S4x256x16, .f32⟩
  | 77 => ⟨S4x256x16, .f32⟩
  | 78 => ⟨S4x1x256, .f32⟩
  | 79 => ⟨S4x256, .f32⟩
  | 80 => ⟨S4x256x1, .f32⟩
  | 81 => ⟨S4x1x16, .f32⟩
  | 82 => ⟨S4x16, .f32⟩
  | 83 => ⟨S4x1x16, .f32⟩
  | 84 => ⟨S4x256x16, .f32⟩
  | 85 => ⟨S4x256x16, .f32⟩
  | 86 => ⟨S4x256x16, .f32⟩
  | 87 => ⟨S4x256x16, .f32⟩
  | 88 => ⟨S4x1x16, .f32⟩
  | 89 => ⟨S4x16, .f32⟩
  | 90 => ⟨S4x1x16, .f32⟩
  | 91 => ⟨S4x256x16, .f32⟩
  | 92 => ⟨S4x256x16, .f32⟩
  | 93 => ⟨S_, .f32⟩
  | 94 => ⟨S4x256, .f32⟩
  | 95 => ⟨S_, .i32⟩
  | 96 => ⟨S1, .i32⟩
  | 97 => ⟨S4x512x256, .f32⟩
  | 98 => ⟨S4x256x16, .f32⟩
  | 99 => ⟨S4x256x16, .f32⟩
  | 100 => ⟨S4x1x256, .f32⟩
  | 101 => ⟨S4x256, .f32⟩
  | 102 => ⟨S4x256x1, .f32⟩
  | 103 => ⟨S4x1x16, .f32⟩
  | 104 => ⟨S4x16, .f32⟩
  | 105 => ⟨S4x1x16, .f32⟩
  | 106 => ⟨S4x256x16, .f32⟩
  | 107 => ⟨S4x256x16, .f32⟩
  | 108 => ⟨S4x256x16, .f32⟩
  | 109 => ⟨S4x256x16, .f32⟩
  | 110 => ⟨S4x1x16, .f32⟩
  | 111 => ⟨S4x16, .f32⟩
  | 112 => ⟨S4x1x16, .f32⟩
  | 113 => ⟨S4x256x16, .f32⟩
  | 114 => ⟨S4x256x16, .f32⟩
  | 115 => ⟨S_, .f32⟩
  | 116 => ⟨S4x256, .f32⟩
  | 117 => ⟨S_, .i32⟩
  | 118 => ⟨S1, .i32⟩
  | 119 => ⟨S4x512x256, .f32⟩
  | 120 => ⟨S4x256x16, .f32⟩
  | 121 => ⟨S4x256x16, .f32⟩
  | 122 => ⟨S4x1x256, .f32⟩
  | 123 => ⟨S4x256, .f32⟩
  | 124 => ⟨S4x256x1, .f32⟩
  | 125 => ⟨S4x1x16, .f32⟩
  | 126 => ⟨S4x16, .f32⟩
  | 127 => ⟨S4x1x16, .f32⟩
  | _ => ⟨S4x512x256, .f32⟩

abbrev hbmTy0_1 (i : Nat) : BufTy := match i % 128 with
  | 0 => ⟨S4x256x16, .f32⟩
  | 1 => ⟨S4x256x16, .f32⟩
  | 2 => ⟨S4x256x16, .f32⟩
  | 3 => ⟨S4x256x16, .f32⟩
  | 4 => ⟨S4x1x16, .f32⟩
  | 5 => ⟨S4x16, .f32⟩
  | 6 => ⟨S4x1x16, .f32⟩
  | 7 => ⟨S4x256x16, .f32⟩
  | 8 => ⟨S4x256x16, .f32⟩
  | 9 => ⟨S_, .f32⟩
  | 10 => ⟨S4x256, .f32⟩
  | 11 => ⟨S_, .i32⟩
  | 12 => ⟨S1, .i32⟩
  | 13 => ⟨S4x512x256, .f32⟩
  | 14 => ⟨S4x256x16, .f32⟩
  | 15 => ⟨S4x256x16, .f32⟩
  | 16 => ⟨S4x1x256, .f32⟩
  | 17 => ⟨S4x256, .f32⟩
  | 18 => ⟨S4x256x1, .f32⟩
  | 19 => ⟨S4x1x16, .f32⟩
  | 20 => ⟨S4x16, .f32⟩
  | 21 => ⟨S4x1x16, .f32⟩
  | 22 => ⟨S4x256x16, .f32⟩
  | 23 => ⟨S4x256x16, .f32⟩
  | 24 => ⟨S4x256x16, .f32⟩
  | 25 => ⟨S4x256x16, .f32⟩
  | 26 => ⟨S4x1x16, .f32⟩
  | 27 => ⟨S4x16, .f32⟩
  | 28 => ⟨S4x1x16, .f32⟩
  | 29 => ⟨S4x256x16, .f32⟩
  | 30 => ⟨S4x256x16, .f32⟩
  | 31 => ⟨S_, .f32⟩
  | 32 => ⟨S4x256, .f32⟩
  | 33 => ⟨S_, .i32⟩
  | 34 => ⟨S1, .i32⟩
  | 35 => ⟨S4x512x256, .f32⟩
  | 36 => ⟨S4x256x16, .f32⟩
  | 37 => ⟨S4x256x16, .f32⟩
  | 38 => ⟨S4x1x256, .f32⟩
  | 39 => ⟨S4x256, .f32⟩
  | 40 => ⟨S4x256x1, .f32⟩
  | 41 => ⟨S4x1x16, .f32⟩
  | 42 => ⟨S4x16, .f32⟩
  | 43 => ⟨S4x1x16, .f32⟩
  | 44 => ⟨S4x256x16, .f32⟩
  | 45 => ⟨S4x256x16, .f32⟩
  | 46 => ⟨S4x256x16, .f32⟩
  | 47 => ⟨S4x256x16, .f32⟩
  | 48 => ⟨S4x1x16, .f32⟩
  | 49 => ⟨S4x16, .f32⟩
  | 50 => ⟨S4x1x16, .f32⟩
  | 51 => ⟨S4x256x16, .f32⟩
  | 52 => ⟨S4x256x16, .f32⟩
  | 53 => ⟨S_, .f32⟩
  | 54 => ⟨S4x256, .f32⟩
  | 55 => ⟨S_, .i32⟩
  | 56 => ⟨S1, .i32⟩
  | 57 => ⟨S4x512x256, .f32⟩
  | 58 => ⟨S4x256x16, .f32⟩
  | 59 => ⟨S4x256x16, .f32⟩
  | 60 => ⟨S4x1x256, .f32⟩
  | 61 => ⟨S4x256, .f32⟩
  | 62 => ⟨S4x256x1, .f32⟩
  | 63 => ⟨S4x1x16, .f32⟩
  | 64 => ⟨S4x16, .f32⟩
  | 65 => ⟨S4x1x16, .f32⟩
  | 66 => ⟨S4x256x16, .f32⟩
  | 67 => ⟨S4x256x16, .f32⟩
  | 68 => ⟨S4x256x16, .f32⟩
  | 69 => ⟨S4x256x16, .f32⟩
  | 70 => ⟨S4x1x16, .f32⟩
  | 71 => ⟨S4x16, .f32⟩
  | 72 => ⟨S4x1x16, .f32⟩
  | 73 => ⟨S4x256x16, .f32⟩
  | 74 => ⟨S4x256x16, .f32⟩
  | 75 => ⟨S_, .f32⟩
  | 76 => ⟨S4x256, .f32⟩
  | 77 => ⟨S_, .i32⟩
  | 78 => ⟨S1, .i32⟩
  | 79 => ⟨S4x512x256, .f32⟩
  | 80 => ⟨S4x256x16, .f32⟩
  | 81 => ⟨S4x256x16, .f32⟩
  | 82 => ⟨S4x1x256, .f32⟩
  | 83 => ⟨S4x256, .f32⟩
  | 84 => ⟨S4x256x1, .f32⟩
  | 85 => ⟨S4x1x16, .f32⟩
  | 86 => ⟨S4x16, .f32⟩
  | 87 => ⟨S4x1x16, .f32⟩
  | 88 => ⟨S4x256x16, .f32⟩
  | 89 => ⟨S4x256x16, .f32⟩
  | 90 => ⟨S4x256x16, .f32⟩
  | 91 => ⟨S4x256x16, .f32⟩
  | 92 => ⟨S4x1x16, .f32⟩
  | 93 => ⟨S4x16, .f32⟩
  | 94 => ⟨S4x1x16, .f32⟩
  | 95 => ⟨S4x256x16, .f32⟩
  | 96 => ⟨S4x256x16, .f32⟩
  | 97 => ⟨S_, .f32⟩
  | 98 => ⟨S4x256, .f32⟩
  | 99 => ⟨S_, .i32⟩
  | 100 => ⟨S1, .i32⟩
  | 101 => ⟨S4x512x256, .f32⟩
  | 102 => ⟨S4x256x16, .f32⟩
  | 103 => ⟨S4x256x16, .f32⟩
  | 104 => ⟨S4x1x256, .f32⟩
  | 105 => ⟨S4x256, .f32⟩
  | 106 => ⟨S4x256x1, .f32⟩
  | 107 => ⟨S4x1x16, .f32⟩
  | 108 => ⟨S4x16, .f32⟩
  | 109 => ⟨S4x1x16, .f32⟩
  | 110 => ⟨S4x256x16, .f32⟩
  | 111 => ⟨S4x256x16, .f32⟩
  | 112 => ⟨S4x256x16, .f32⟩
  | 113 => ⟨S4x256x16, .f32⟩
  | 114 => ⟨S4x1x16, .f32⟩
  | 115 => ⟨S4x16, .f32⟩
  | 116 => ⟨S4x1x16, .f32⟩
  | 117 => ⟨S4x256x16, .f32⟩
  | 118 => ⟨S4x256x16, .f32⟩
  | 119 => ⟨S_, .f32⟩
  | 120 => ⟨S4x256, .f32⟩
  | 121 => ⟨S_, .i32⟩
  | 122 => ⟨S1, .i32⟩
  | 123 => ⟨S4x512x256, .f32⟩
  | 124 => ⟨S4x256x16, .f32⟩
  | 125 => ⟨S4x256x16, .f32⟩
  | 126 => ⟨S4x1x256, .f32⟩
  | 127 => ⟨S4x256, .f32⟩
  | _ => ⟨S4x512x256, .f32⟩

abbrev hbmTy0_2 (i : Nat) : BufTy := match i % 128 with
  | 0 => ⟨S4x256x1, .f32⟩
  | 1 => ⟨S4x1x16, .f32⟩
  | 2 => ⟨S4x16, .f32⟩
  | 3 => ⟨S4x1x16, .f32⟩
  | 4 => ⟨S4x256x16, .f32⟩
  | 5 => ⟨S4x256x16, .f32⟩
  | 6 => ⟨S4x256x16, .f32⟩
  | 7 => ⟨S4x256x16, .f32⟩
  | 8 => ⟨S4x1x16, .f32⟩
  | 9 => ⟨S4x16, .f32⟩
  | 10 => ⟨S4x1x16, .f32⟩
  | 11 => ⟨S4x256x16, .f32⟩
  | 12 => ⟨S4x256x16, .f32⟩
  | 13 => ⟨S_, .f32⟩
  | 14 => ⟨S4x256, .f32⟩
  | 15 => ⟨S_, .i32⟩
  | 16 => ⟨S1, .i32⟩
  | 17 => ⟨S4x512x256, .f32⟩
  | 18 => ⟨S4x256x16, .f32⟩
  | 19 => ⟨S4x256x16, .f32⟩
  | 20 => ⟨S4x1x256, .f32⟩
  | 21 => ⟨S4x256, .f32⟩
  | 22 => ⟨S4x256x1, .f32⟩
  | 23 => ⟨S4x1x16, .f32⟩
  | 24 => ⟨S4x16, .f32⟩
  | 25 => ⟨S4x1x16, .f32⟩
  | 26 => ⟨S4x256x16, .f32⟩
  | 27 => ⟨S4x256x16, .f32⟩
  | 28 => ⟨S4x256x16, .f32⟩
  | 29 => ⟨S4x256x16, .f32⟩
  | 30 => ⟨S4x1x16, .f32⟩
  | 31 => ⟨S4x16, .f32⟩
  | 32 => ⟨S4x1x16, .f32⟩
  | 33 => ⟨S4x256x16, .f32⟩
  | 34 => ⟨S4x256x16, .f32⟩
  | 35 => ⟨S_, .f32⟩
  | 36 => ⟨S4x256, .f32⟩
  | 37 => ⟨S_, .i32⟩
  | 38 => ⟨S1, .i32⟩
  | 39 => ⟨S4x512x256, .f32⟩
  | 40 => ⟨S4x256x16, .f32⟩
  | 41 => ⟨S4x256x16, .f32⟩
  | 42 => ⟨S4x1x256, .f32⟩
  | 43 => ⟨S4x256, .f32⟩
  | 44 => ⟨S4x256x1, .f32⟩
  | 45 => ⟨S4x1x16, .f32⟩
  | 46 => ⟨S4x16, .f32⟩
  | 47 => ⟨S4x1x16, .f32⟩
  | 48 => ⟨S4x256x16, .f32⟩
  | 49 => ⟨S4x256x16, .f32⟩
  | 50 => ⟨S4x256x16, .f32⟩
  | 51 => ⟨S4x256x16, .f32⟩
  | 52 => ⟨S4x1x16, .f32⟩
  | 53 => ⟨S4x16, .f32⟩
  | 54 => ⟨S4x1x16, .f32⟩
  | 55 => ⟨S4x256x16, .f32⟩
  | 56 => ⟨S4x256x16, .f32⟩
  | 57 => ⟨S_, .f32⟩
  | 58 => ⟨S4x256, .f32⟩
  | 59 => ⟨S_, .i32⟩
  | 60 => ⟨S1, .i32⟩
  | 61 => ⟨S4x512x256, .f32⟩
  | 62 => ⟨S4x256x16, .f32⟩
  | 63 => ⟨S4x256x16, .f32⟩
  | 64 => ⟨S4x1x256, .f32⟩
  | 65 => ⟨S4x256, .f32⟩
  | 66 => ⟨S4x256x1, .f32⟩
  | 67 => ⟨S4x1x16, .f32⟩
  | 68 => ⟨S4x16, .f32⟩
  | 69 => ⟨S4x1x16, .f32⟩
  | 70 => ⟨S4x256x16, .f32⟩
  | 71 => ⟨S4x256x16, .f32⟩
  | 72 => ⟨S4x256x16, .f32⟩
  | 73 => ⟨S4x256x16, .f32⟩
  | 74 => ⟨S4x1x16, .f32⟩
  | 75 => ⟨S4x16, .f32⟩
  | 76 => ⟨S4x1x16, .f32⟩
  | 77 => ⟨S4x256x16, .f32⟩
  | 78 => ⟨S4x256x16, .f32⟩
  | 79 => ⟨S_, .f32⟩
  | 80 => ⟨S4x256, .f32⟩
  | 81 => ⟨S_, .i32⟩
  | 82 => ⟨S1, .i32⟩
  | 83 => ⟨S4x512x256, .f32⟩
  | 84 => ⟨S4x256x16, .f32⟩
  | 85 => ⟨S4x256x16, .f32⟩
  | 86 => ⟨S4x1x256, .f32⟩
  | 87 => ⟨S4x256, .f32⟩
  | 88 => ⟨S4x256x1, .f32⟩
  | 89 => ⟨S4x1x16, .f32⟩
  | 90 => ⟨S4x16, .f32⟩
  | 91 => ⟨S4x1x16, .f32⟩
  | 92 => ⟨S4x256x16, .f32⟩
  | 93 => ⟨S4x256x16, .f32⟩
  | 94 => ⟨S4x256x16, .f32⟩
  | 95 => ⟨S4x256x16, .f32⟩
  | 96 => ⟨S4x1x16, .f32⟩
  | 97 => ⟨S4x16, .f32⟩
  | 98 => ⟨S4x1x16, .f32⟩
  | 99 => ⟨S4x256x16, .f32⟩
  | 100 => ⟨S4x256x16, .f32⟩
  | 101 => ⟨S_, .f32⟩
  | 102 => ⟨S4x256, .f32⟩
  | 103 => ⟨S_, .i32⟩
  | 104 => ⟨S1, .i32⟩
  | 105 => ⟨S4x512x256, .f32⟩
  | 106 => ⟨S4x256x16, .f32⟩
  | 107 => ⟨S4x256x16, .f32⟩
  | 108 => ⟨S4x1x256, .f32⟩
  | 109 => ⟨S4x256, .f32⟩
  | 110 => ⟨S4x256x1, .f32⟩
  | 111 => ⟨S4x1x16, .f32⟩
  | 112 => ⟨S4x16, .f32⟩
  | 113 => ⟨S4x1x16, .f32⟩
  | 114 => ⟨S4x256x16, .f32⟩
  | 115 => ⟨S4x256x16, .f32⟩
  | 116 => ⟨S4x256x16, .f32⟩
  | 117 => ⟨S4x256x16, .f32⟩
  | 118 => ⟨S4x1x16, .f32⟩
  | 119 => ⟨S4x16, .f32⟩
  | 120 => ⟨S4x1x16, .f32⟩
  | 121 => ⟨S4x256x16, .f32⟩
  | 122 => ⟨S4x256x16, .f32⟩
  | 123 => ⟨S_, .f32⟩
  | 124 => ⟨S4x256, .f32⟩
  | 125 => ⟨S_, .i32⟩
  | 126 => ⟨S1, .i32⟩
  | 127 => ⟨S4x512x256, .f32⟩
  | _ => ⟨S4x512x256, .f32⟩

abbrev hbmTy0_3 (i : Nat) : BufTy := match i % 128 with
  | 0 => ⟨S4x256x16, .f32⟩
  | 1 => ⟨S4x256x16, .f32⟩
  | 2 => ⟨S4x1x256, .f32⟩
  | 3 => ⟨S4x256, .f32⟩
  | 4 => ⟨S4x256x1, .f32⟩
  | 5 => ⟨S4x1x16, .f32⟩
  | 6 => ⟨S4x16, .f32⟩
  | 7 => ⟨S4x1x16, .f32⟩
  | 8 => ⟨S4x256x16, .f32⟩
  | 9 => ⟨S4x256x16, .f32⟩
  | 10 => ⟨S4x256x16, .f32⟩
  | 11 => ⟨S4x256x16, .f32⟩
  | 12 => ⟨S4x1x16, .f32⟩
  | 13 => ⟨S4x16, .f32⟩
  | 14 => ⟨S4x1x16, .f32⟩
  | 15 => ⟨S4x256x16, .f32⟩
  | 16 => ⟨S4x256x16, .f32⟩
  | 17 => ⟨S_, .f32⟩
  | 18 => ⟨S4x256, .f32⟩
  | 19 => ⟨S_, .i32⟩
  | 20 => ⟨S1, .i32⟩
  | 21 => ⟨S4x512x256, .f32⟩
  | 22 => ⟨S4x256x16, .f32⟩
  | 23 => ⟨S4x256x16, .f32⟩
  | 24 => ⟨S4x1x256, .f32⟩
  | 25 => ⟨S4x256, .f32⟩
  | 26 => ⟨S4x256x1, .f32⟩
  | 27 => ⟨S4x1x16, .f32⟩
  | 28 => ⟨S4x16, .f32⟩
  | 29 => ⟨S4x1x16, .f32⟩
  | 30 => ⟨S4x256x16, .f32⟩
  | 31 => ⟨S4x256x16, .f32⟩
  | 32 => ⟨S4x256x16, .f32⟩
  | 33 => ⟨S4x256x16, .f32⟩
  | 34 => ⟨S4x1x16, .f32⟩
  | 35 => ⟨S4x16, .f32⟩
  | 36 => ⟨S4x1x16, .f32⟩
  | 37 => ⟨S4x256x16, .f32⟩
  | 38 => ⟨S4x256x16, .f32⟩
  | 39 => ⟨S_, .f32⟩
  | 40 => ⟨S4x256, .f32⟩
  | 41 => ⟨S_, .i32⟩
  | 42 => ⟨S1, .i32⟩
  | 43 => ⟨S4x512x256, .f32⟩
  | 44 => ⟨S4x256x16, .f32⟩
  | 45 => ⟨S4x256x16, .f32⟩
  | 46 => ⟨S4x1x256, .f32⟩
  | 47 => ⟨S4x256, .f32⟩
  | 48 => ⟨S4x256x1, .f32⟩
  | 49 => ⟨S4x1x16, .f32⟩
  | 50 => ⟨S4x16, .f32⟩
  | 51 => ⟨S4x1x16, .f32⟩
  | 52 => ⟨S4x256x16, .f32⟩
  | 53 => ⟨S4x256x16, .f32⟩
  | 54 => ⟨S4x256x16, .f32⟩
  | 55 => ⟨S4x256x16, .f32⟩
  | 56 => ⟨S4x1x16, .f32⟩
  | 57 => ⟨S4x16, .f32⟩
  | 58 => ⟨S4x1x16, .f32⟩
  | 59 => ⟨S4x256x16, .f32⟩
  | 60 => ⟨S4x256x16, .f32⟩
  | 61 => ⟨S_, .f32⟩
  | 62 => ⟨S4x256, .f32⟩
  | 63 => ⟨S_, .i32⟩
  | 64 => ⟨S1, .i32⟩
  | 65 => ⟨S4x512x256, .f32⟩
  | 66 => ⟨S4x256x16, .f32⟩
  | 67 => ⟨S4x256x16, .f32⟩
  | 68 => ⟨S4x1x256, .f32⟩
  | 69 => ⟨S4x256, .f32⟩
  | 70 => ⟨S4x256x1, .f32⟩
  | 71 => ⟨S4x1x16, .f32⟩
  | 72 => ⟨S4x16, .f32⟩
  | 73 => ⟨S4x1x16, .f32⟩
  | 74 => ⟨S4x256x16, .f32⟩
  | 75 => ⟨S4x256x16, .f32⟩
  | 76 => ⟨S4x256x16, .f32⟩
  | 77 => ⟨S4x256x16, .f32⟩
  | 78 => ⟨S4x1x16, .f32⟩
  | 79 => ⟨S4x16, .f32⟩
  | 80 => ⟨S4x1x16, .f32⟩
  | 81 => ⟨S4x256x16, .f32⟩
  | 82 => ⟨S4x256x16, .f32⟩
  | 83 => ⟨S_, .f32⟩
  | 84 => ⟨S4x256, .f32⟩
  | 85 => ⟨S_, .i32⟩
  | 86 => ⟨S1, .i32⟩
  | 87 => ⟨S4x512x256, .f32⟩
  | 88 => ⟨S4x256x16, .f32⟩
  | 89 => ⟨S4x256x16, .f32⟩
  | 90 => ⟨S4x1x256, .f32⟩
  | 91 => ⟨S4x256, .f32⟩
  | 92 => ⟨S4x256x1, .f32⟩
  | 93 => ⟨S4x1x16, .f32⟩
  | 94 => ⟨S4x16, .f32⟩
  | 95 => ⟨S4x1x16, .f32⟩
  | 96 => ⟨S4x256x16, .f32⟩
  | 97 => ⟨S4x256x16, .f32⟩
  | 98 => ⟨S4x256x16, .f32⟩
  | 99 => ⟨S4x256x16, .f32⟩
  | 100 => ⟨S4x1x16, .f32⟩
  | 101 => ⟨S4x16, .f32⟩
  | 102 => ⟨S4x1x16, .f32⟩
  | 103 => ⟨S4x256x16, .f32⟩
  | 104 => ⟨S4x256x16, .f32⟩
  | 105 => ⟨S_, .f32⟩
  | 106 => ⟨S4x256, .f32⟩
  | 107 => ⟨S_, .i32⟩
  | 108 => ⟨S1, .i32⟩
  | 109 => ⟨S4x512x256, .f32⟩
  | 110 => ⟨S4x256x16, .f32⟩
  | 111 => ⟨S4x256x16, .f32⟩
  | 112 => ⟨S4x1x256, .f32⟩
  | 113 => ⟨S4x256, .f32⟩
  | 114 => ⟨S4x256x1, .f32⟩
  | 115 => ⟨S4x1x16, .f32⟩
  | 116 => ⟨S4x16, .f32⟩
  | 117 => ⟨S4x1x16, .f32⟩
  | 118 => ⟨S4x256x16, .f32⟩
  | 119 => ⟨S4x256x16, .f32⟩
  | 120 => ⟨S4x256x16, .f32⟩
  | 121 => ⟨S4x256x16, .f32⟩
  | 122 => ⟨S4x1x16, .f32⟩
  | 123 => ⟨S4x16, .f32⟩
  | 124 => ⟨S4x1x16, .f32⟩
  | 125 => ⟨S4x256x16, .f32⟩
  | 126 => ⟨S4x256x16, .f32⟩
  | 127 => ⟨S_, .f32⟩
  | _ => ⟨S4x512x256, .f32⟩

abbrev hbmTy0_4 (i : Nat) : BufTy := match i % 128 with
  | 0 => ⟨S4x256, .f32⟩
  | 1 => ⟨S_, .i32⟩
  | 2 => ⟨S1, .i32⟩
  | 3 => ⟨S4x512x256, .f32⟩
  | 4 => ⟨S4x256x16, .f32⟩
  | 5 => ⟨S4x256x16, .f32⟩
  | 6 => ⟨S4x1x256, .f32⟩
  | 7 => ⟨S4x256, .f32⟩
  | 8 => ⟨S4x256x1, .f32⟩
  | 9 => ⟨S4x1x16, .f32⟩
  | 10 => ⟨S4x16, .f32⟩
  | 11 => ⟨S4x1x16, .f32⟩
  | 12 => ⟨S4x256x16, .f32⟩
  | 13 => ⟨S4x256x16, .f32⟩
  | 14 => ⟨S4x256x16, .f32⟩
  | 15 => ⟨S4x256x16, .f32⟩
  | 16 => ⟨S4x1x16, .f32⟩
  | 17 => ⟨S4x16, .f32⟩
  | 18 => ⟨S4x1x16, .f32⟩
  | 19 => ⟨S4x256x16, .f32⟩
  | 20 => ⟨S4x256x16, .f32⟩
  | 21 => ⟨S_, .f32⟩
  | 22 => ⟨S4x256, .f32⟩
  | 23 => ⟨S_, .i32⟩
  | 24 => ⟨S1, .i32⟩
  | 25 => ⟨S4x512x256, .f32⟩
  | 26 => ⟨S4x256x16, .f32⟩
  | 27 => ⟨S4x256x16, .f32⟩
  | 28 => ⟨S4x1x256, .f32⟩
  | 29 => ⟨S4x256, .f32⟩
  | 30 => ⟨S4x256x1, .f32⟩
  | 31 => ⟨S4x1x16, .f32⟩
  | 32 => ⟨S4x16, .f32⟩
  | 33 => ⟨S4x1x16, .f32⟩
  | 34 => ⟨S4x256x16, .f32⟩
  | 35 => ⟨S4x256x16, .f32⟩
  | 36 => ⟨S4x256x16, .f32⟩
  | 37 => ⟨S4x256x16, .f32⟩
  | 38 => ⟨S4x1x16, .f32⟩
  | 39 => ⟨S4x16, .f32⟩
  | 40 => ⟨S4x1x16, .f32⟩
  | 41 => ⟨S4x256x16, .f32⟩
  | 42 => ⟨S4x256x16, .f32⟩
  | 43 => ⟨S_, .f32⟩
  | 44 => ⟨S4x256, .f32⟩
  | 45 => ⟨S_, .i32⟩
  | 46 => ⟨S1, .i32⟩
  | 47 => ⟨S4x512x256, .f32⟩
  | 48 => ⟨S4x256x16, .f32⟩
  | 49 => ⟨S4x256x16, .f32⟩
  | 50 => ⟨S4x1x256, .f32⟩
  | 51 => ⟨S4x256, .f32⟩
  | 52 => ⟨S4x256x1, .f32⟩
  | 53 => ⟨S4x1x16, .f32⟩
  | 54 => ⟨S4x16, .f32⟩
  | 55 => ⟨S4x1x16, .f32⟩
  | 56 => ⟨S4x256x16, .f32⟩
  | 57 => ⟨S4x256x16, .f32⟩
  | 58 => ⟨S4x256x16, .f32⟩
  | 59 => ⟨S4x256x16, .f32⟩
  | 60 => ⟨S4x1x16, .f32⟩
  | 61 => ⟨S4x16, .f32⟩
  | 62 => ⟨S4x1x16, .f32⟩
  | 63 => ⟨S4x256x16, .f32⟩
  | 64 => ⟨S4x256x16, .f32⟩
  | 65 => ⟨S_, .f32⟩
  | 66 => ⟨S4x256, .f32⟩
  | 67 => ⟨S_, .i32⟩
  | 68 => ⟨S1, .i32⟩
  | 69 => ⟨S4x512x256, .f32⟩
  | 70 => ⟨S4x256x16, .f32⟩
  | 71 => ⟨S4x256x16, .f32⟩
  | 72 => ⟨S4x1x256, .f32⟩
  | 73 => ⟨S4x256, .f32⟩
  | 74 => ⟨S4x256x1, .f32⟩
  | 75 => ⟨S4x1x16, .f32⟩
  | 76 => ⟨S4x16, .f32⟩
  | 77 => ⟨S4x1x16, .f32⟩
  | 78 => ⟨S4x256x16, .f32⟩
  | 79 => ⟨S4x256x16, .f32⟩
  | 80 => ⟨S4x256x16, .f32⟩
  | 81 => ⟨S4x256x16, .f32⟩
  | 82 => ⟨S4x1x16, .f32⟩
  | 83 => ⟨S4x16, .f32⟩
  | 84 => ⟨S4x1x16, .f32⟩
  | 85 => ⟨S4x256x16, .f32⟩
  | 86 => ⟨S4x256x16, .f32⟩
  | 87 => ⟨S_, .f32⟩
  | 88 => ⟨S4x256, .f32⟩
  | 89 => ⟨S_, .i32⟩
  | 90 => ⟨S1, .i32⟩
  | 91 => ⟨S4x512x256, .f32⟩
  | 92 => ⟨S4x256x16, .f32⟩
  | 93 => ⟨S4x256x16, .f32⟩
  | 94 => ⟨S4x1x256, .f32⟩
  | 95 => ⟨S4x256, .f32⟩
  | 96 => ⟨S4x256x1, .f32⟩
  | 97 => ⟨S4x1x16, .f32⟩
  | 98 => ⟨S4x16, .f32⟩
  | 99 => ⟨S4x1x16, .f32⟩
  | 100 => ⟨S4x256x16, .f32⟩
  | 101 => ⟨S4x256x16, .f32⟩
  | 102 => ⟨S4x256x16, .f32⟩
  | 103 => ⟨S4x256x16, .f32⟩
  | 104 => ⟨S4x1x16, .f32⟩
  | 105 => ⟨S4x16, .f32⟩
  | 106 => ⟨S4x1x16, .f32⟩
  | 107 => ⟨S4x256x16, .f32⟩
  | 108 => ⟨S4x256x16, .f32⟩
  | 109 => ⟨S_, .f32⟩
  | 110 => ⟨S4x256, .f32⟩
  | 111 => ⟨S_, .i32⟩
  | 112 => ⟨S1, .i32⟩
  | 113 => ⟨S4x512x256, .f32⟩
  | 114 => ⟨S4x256x16, .f32⟩
  | 115 => ⟨S4x256x16, .f32⟩
  | 116 => ⟨S4x1x256, .f32⟩
  | 117 => ⟨S4x256, .f32⟩
  | 118 => ⟨S4x256x1, .f32⟩
  | 119 => ⟨S4x1x16, .f32⟩
  | 120 => ⟨S4x16, .f32⟩
  | 121 => ⟨S4x1x16, .f32⟩
  | 122 => ⟨S4x256x16, .f32⟩
  | 123 => ⟨S4x256x16, .f32⟩
  | 124 => ⟨S4x256x16, .f32⟩
  | 125 => ⟨S4x256x16, .f32⟩
  | 126 => ⟨S4x1x16, .f32⟩
  | 127 => ⟨S4x16, .f32⟩
  | _ => ⟨S4x512x256, .f32⟩

abbrev hbmTy0_5 (i : Nat) : BufTy := match i % 128 with
  | 0 => ⟨S4x1x16, .f32⟩
  | 1 => ⟨S4x256x16, .f32⟩
  | 2 => ⟨S4x256x16, .f32⟩
  | 3 => ⟨S_, .f32⟩
  | 4 => ⟨S4x256, .f32⟩
  | 5 => ⟨S_, .i32⟩
  | 6 => ⟨S1, .i32⟩
  | 7 => ⟨S4x512x256, .f32⟩
  | 8 => ⟨S4x256x16, .f32⟩
  | 9 => ⟨S4x256x16, .f32⟩
  | 10 => ⟨S4x1x256, .f32⟩
  | 11 => ⟨S4x256, .f32⟩
  | 12 => ⟨S4x256x1, .f32⟩
  | 13 => ⟨S4x1x16, .f32⟩
  | 14 => ⟨S4x16, .f32⟩
  | 15 => ⟨S4x1x16, .f32⟩
  | 16 => ⟨S4x256x16, .f32⟩
  | 17 => ⟨S4x256x16, .f32⟩
  | 18 => ⟨S4x256x16, .f32⟩
  | 19 => ⟨S4x256x16, .f32⟩
  | 20 => ⟨S4x1x16, .f32⟩
  | 21 => ⟨S4x16, .f32⟩
  | 22 => ⟨S4x1x16, .f32⟩
  | 23 => ⟨S4x256x16, .f32⟩
  | 24 => ⟨S4x256x16, .f32⟩
  | 25 => ⟨S_, .f32⟩
  | 26 => ⟨S4x256, .f32⟩
  | 27 => ⟨S_, .i32⟩
  | 28 => ⟨S1, .i32⟩
  | 29 => ⟨S4x512x256, .f32⟩
  | 30 => ⟨S4x256x16, .f32⟩
  | 31 => ⟨S4x256x16, .f32⟩
  | 32 => ⟨S4x1x256, .f32⟩
  | 33 => ⟨S4x256, .f32⟩
  | 34 => ⟨S4x256x1, .f32⟩
  | 35 => ⟨S4x1x16, .f32⟩
  | 36 => ⟨S4x16, .f32⟩
  | 37 => ⟨S4x1x16, .f32⟩
  | 38 => ⟨S4x256x16, .f32⟩
  | 39 => ⟨S4x256x16, .f32⟩
  | 40 => ⟨S4x256x16, .f32⟩
  | 41 => ⟨S4x256x16, .f32⟩
  | 42 => ⟨S4x1x16, .f32⟩
  | 43 => ⟨S4x16, .f32⟩
  | 44 => ⟨S4x1x16, .f32⟩
  | 45 => ⟨S4x256x16, .f32⟩
  | 46 => ⟨S4x256x16, .f32⟩
  | 47 => ⟨S_, .f32⟩
  | 48 => ⟨S4x256, .f32⟩
  | 49 => ⟨S_, .i32⟩
  | 50 => ⟨S1, .i32⟩
  | 51 => ⟨S4x512x256, .f32⟩
  | 52 => ⟨S4x256x16, .f32⟩
  | 53 => ⟨S4x256x16, .f32⟩
  | 54 => ⟨S4x1x256, .f32⟩
  | 55 => ⟨S4x256, .f32⟩
  | 56 => ⟨S4x256x1, .f32⟩
  | 57 => ⟨S4x1x16, .f32⟩
  | 58 => ⟨S4x16, .f32⟩
  | 59 => ⟨S4x1x16, .f32⟩
  | 60 => ⟨S4x256x16, .f32⟩
  | 61 => ⟨S4x256x16, .f32⟩
  | 62 => ⟨S4x256x16, .f32⟩
  | 63 => ⟨S4x256x16, .f32⟩
  | 64 => ⟨S4x1x16, .f32⟩
  | 65 => ⟨S4x16, .f32⟩
  | 66 => ⟨S4x1x16, .f32⟩
  | 67 => ⟨S4x256x16, .f32⟩
  | 68 => ⟨S4x256x16, .f32⟩
  | 69 => ⟨S_, .f32⟩
  | 70 => ⟨S4x256, .f32⟩
  | 71 => ⟨S_, .i32⟩
  | 72 => ⟨S1, .i32⟩
  | 73 => ⟨S4x512x256, .f32⟩
  | 74 => ⟨S4x256x16, .f32⟩
  | 75 => ⟨S4x256x16, .f32⟩
  | 76 => ⟨S4x1x256, .f32⟩
  | 77 => ⟨S4x256, .f32⟩
  | 78 => ⟨S4x256x1, .f32⟩
  | 79 => ⟨S4x1x16, .f32⟩
  | 80 => ⟨S4x16, .f32⟩
  | 81 => ⟨S4x1x16, .f32⟩
  | 82 => ⟨S4x256x16, .f32⟩
  | 83 => ⟨S4x256x16, .f32⟩
  | 84 => ⟨S4x256x16, .f32⟩
  | 85 => ⟨S4x256x16, .f32⟩
  | 86 => ⟨S4x1x16, .f32⟩
  | 87 => ⟨S4x16, .f32⟩
  | 88 => ⟨S4x1x16, .f32⟩
  | 89 => ⟨S4x256x16, .f32⟩
  | 90 => ⟨S4x256x16, .f32⟩
  | 91 => ⟨S_, .f32⟩
  | 92 => ⟨S4x256, .f32⟩
  | 93 => ⟨S_, .i32⟩
  | 94 => ⟨S1, .i32⟩
  | 95 => ⟨S4x512x256, .f32⟩
  | 96 => ⟨S4x256x16, .f32⟩
  | 97 => ⟨S4x256x16, .f32⟩
  | 98 => ⟨S4x1x256, .f32⟩
  | 99 => ⟨S4x256, .f32⟩
  | 100 => ⟨S4x256x1, .f32⟩
  | 101 => ⟨S4x1x16, .f32⟩
  | 102 => ⟨S4x16, .f32⟩
  | 103 => ⟨S4x1x16, .f32⟩
  | 104 => ⟨S4x256x16, .f32⟩
  | 105 => ⟨S4x256x16, .f32⟩
  | 106 => ⟨S4x256x16, .f32⟩
  | 107 => ⟨S4x256x16, .f32⟩
  | 108 => ⟨S4x1x16, .f32⟩
  | 109 => ⟨S4x16, .f32⟩
  | 110 => ⟨S4x1x16, .f32⟩
  | 111 => ⟨S4x256x16, .f32⟩
  | 112 => ⟨S4x256x16, .f32⟩
  | 113 => ⟨S_, .f32⟩
  | 114 => ⟨S4x256, .f32⟩
  | 115 => ⟨S_, .i32⟩
  | 116 => ⟨S1, .i32⟩
  | 117 => ⟨S4x512x256, .f32⟩
  | 118 => ⟨S4x256x16, .f32⟩
  | 119 => ⟨S4x256x16, .f32⟩
  | 120 => ⟨S4x1x256, .f32⟩
  | 121 => ⟨S4x256, .f32⟩
  | 122 => ⟨S4x256x1, .f32⟩
  | 123 => ⟨S4x1x16, .f32⟩
  | 124 => ⟨S4x16, .f32⟩
  | 125 => ⟨S4x1x16, .f32⟩
  | 126 => ⟨S4x256x16, .f32⟩
  | 127 => ⟨S4x256x16, .f32⟩
  | _ => ⟨S4x512x256, .f32⟩

abbrev hbmTy0_6 (i : Nat) : BufTy := match i % 128 with
  | 0 => ⟨S4x256x16, .f32⟩
  | 1 => ⟨S4x256x16, .f32⟩
  | 2 => ⟨S4x1x16, .f32⟩
  | 3 => ⟨S4x16, .f32⟩
  | 4 => ⟨S4x1x16, .f32⟩
  | 5 => ⟨S4x256x16, .f32⟩
  | 6 => ⟨S4x256x16, .f32⟩
  | 7 => ⟨S_, .f32⟩
  | 8 => ⟨S4x256, .f32⟩
  | 9 => ⟨S_, .i32⟩
  | 10 => ⟨S1, .i32⟩
  | 11 => ⟨S4x512x256, .f32⟩
  | 12 => ⟨S4x256x16, .f32⟩
  | 13 => ⟨S4x256x16, .f32⟩
  | 14 => ⟨S4x1x256, .f32⟩
  | 15 => ⟨S4x256, .f32⟩
  | 16 => ⟨S4x256x1, .f32⟩
  | 17 => ⟨S4x1x16, .f32⟩
  | 18 => ⟨S4x16, .f32⟩
  | 19 => ⟨S4x1x16, .f32⟩
  | 20 => ⟨S4x256x16, .f32⟩
  | 21 => ⟨S4x256x16, .f32⟩
  | 22 => ⟨S4x256x16, .f32⟩
  | 23 => ⟨S4x256x16, .f32⟩
  | 24 => ⟨S4x1x16, .f32⟩
  | 25 => ⟨S4x16, .f32⟩
  | 26 => ⟨S4x1x16, .f32⟩
  | 27 => ⟨S4x256x16, .f32⟩
  | 28 => ⟨S4x256x16, .f32⟩
  | 29 => ⟨S_, .f32⟩
  | 30 => ⟨S4x256, .f32⟩
  | 31 => ⟨S_, .i32⟩
  | 32 => ⟨S1, .i32⟩
  | 33 => ⟨S4x512x256, .f32⟩
  | 34 => ⟨S4x256x16, .f32⟩
  | 35 => ⟨S4x256x16, .f32⟩
  | 36 => ⟨S4x1x256, .f32⟩
  | 37 => ⟨S4x256, .f32⟩
  | 38 => ⟨S4x256x1, .f32⟩
  | 39 => ⟨S4x1x16, .f32⟩
  | 40 => ⟨S4x16, .f32⟩
  | 41 => ⟨S4x1x16, .f32⟩
  | 42 => ⟨S4x256x16, .f32⟩
  | 43 => ⟨S4x256x16, .f32⟩
  | 44 => ⟨S4x256x16, .f32⟩
  | 45 => ⟨S4x256x16, .f32⟩
  | 46 => ⟨S4x1x16, .f32⟩
  | 47 => ⟨S4x16, .f32⟩
  | 48 => ⟨S4x1x16, .f32⟩
  | 49 => ⟨S4x256x16, .f32⟩
  | 50 => ⟨S4x256x16, .f32⟩
  | 51 => ⟨S_, .f32⟩
  | 52 => ⟨S4x256, .f32⟩
  | 53 => ⟨S_, .i32⟩
  | 54 => ⟨S1, .i32⟩
  | 55 => ⟨S4x512x256, .f32⟩
  | 56 => ⟨S4x256x16, .f32⟩
  | 57 => ⟨S4x256x16, .f32⟩
  | 58 => ⟨S4x1x256, .f32⟩
  | 59 => ⟨S4x256, .f32⟩
  | 60 => ⟨S4x256x1, .f32⟩
  | 61 => ⟨S4x1x16, .f32⟩
  | 62 => ⟨S4x16, .f32⟩
  | 63 => ⟨S4x1x16, .f32⟩
  | 64 => ⟨S4x256x16, .f32⟩
  | 65 => ⟨S4x256x16, .f32⟩
  | 66 => ⟨S4x256x16, .f32⟩
  | 67 => ⟨S4x256x16, .f32⟩
  | 68 => ⟨S4x1x16, .f32⟩
  | 69 => ⟨S4x16, .f32⟩
  | 70 => ⟨S4x1x16, .f32⟩
  | 71 => ⟨S4x256x16, .f32⟩
  | 72 => ⟨S4x256x16, .f32⟩
  | 73 => ⟨S_, .f32⟩
  | 74 => ⟨S4x256, .f32⟩
  | 75 => ⟨S_, .i32⟩
  | 76 => ⟨S1, .i32⟩
  | 77 => ⟨S4x512x256, .f32⟩
  | 78 => ⟨S4x256x16, .f32⟩
  | 79 => ⟨S4x256x16, .f32⟩
  | 80 => ⟨S4x1x256, .f32⟩
  | 81 => ⟨S4x256, .f32⟩
  | 82 => ⟨S4x256x1, .f32⟩
  | 83 => ⟨S4x1x16, .f32⟩
  | 84 => ⟨S4x16, .f32⟩
  | 85 => ⟨S4x1x16, .f32⟩
  | 86 => ⟨S4x256x16, .f32⟩
  | 87 => ⟨S4x256x16, .f32⟩
  | 88 => ⟨S4x256x16, .f32⟩
  | 89 => ⟨S4x256x16, .f32⟩
  | 90 => ⟨S4x1x16, .f32⟩
  | 91 => ⟨S4x16, .f32⟩
  | 92 => ⟨S4x1x16, .f32⟩
  | 93 => ⟨S4x256x16, .f32⟩
  | 94 => ⟨S4x256x16, .f32⟩
  | 95 => ⟨S_, .f32⟩
  | 96 => ⟨S4x256, .f32⟩
  | 97 => ⟨S_, .i32⟩
  | 98 => ⟨S1, .i32⟩
  | 99 => ⟨S4x512x256, .f32⟩
  | 100 => ⟨S4x256x16, .f32⟩
  | 101 => ⟨S4x256x16, .f32⟩
  | 102 => ⟨S4x1x256, .f32⟩
  | 103 => ⟨S4x256, .f32⟩
  | 104 => ⟨S4x256x1, .f32⟩
  | 105 => ⟨S4x1x16, .f32⟩
  | 106 => ⟨S4x16, .f32⟩
  | 107 => ⟨S4x1x16, .f32⟩
  | 108 => ⟨S4x256x16, .f32⟩
  | 109 => ⟨S4x256x16, .f32⟩
  | 110 => ⟨S4x256x16, .f32⟩
  | 111 => ⟨S4x256x16, .f32⟩
  | 112 => ⟨S4x1x16, .f32⟩
  | 113 => ⟨S4x16, .f32⟩
  | 114 => ⟨S4x1x16, .f32⟩
  | 115 => ⟨S4x256x16, .f32⟩
  | 116 => ⟨S4x256x16, .f32⟩
  | 117 => ⟨S_, .f32⟩
  | 118 => ⟨S4x256, .f32⟩
  | 119 => ⟨S_, .i32⟩
  | 120 => ⟨S1, .i32⟩
  | 121 => ⟨S4x512x256, .f32⟩
  | 122 => ⟨S4x256x16, .f32⟩
  | 123 => ⟨S4x256x16, .f32⟩
  | 124 => ⟨S4x1x256, .f32⟩
  | 125 => ⟨S4x256, .f32⟩
  | 126 => ⟨S4x256x1, .f32⟩
  | 127 => ⟨S4x1x16, .f32⟩
  | _ => ⟨S4x512x256, .f32⟩

abbrev hbmTy0_7 (i : Nat) : BufTy := match i % 128 with
  | 0 => ⟨S4x16, .f32⟩
  | 1 => ⟨S4x1x16, .f32⟩
  | 2 => ⟨S4x256x16, .f32⟩
  | 3 => ⟨S4x256x16, .f32⟩
  | 4 => ⟨S4x256x16, .f32⟩
  | 5 => ⟨S4x256x16, .f32⟩
  | 6 => ⟨S4x1x16, .f32⟩
  | 7 => ⟨S4x16, .f32⟩
  | 8 => ⟨S4x1x16, .f32⟩
  | 9 => ⟨S4x256x16, .f32⟩
  | 10 => ⟨S4x256x16, .f32⟩
  | 11 => ⟨S_, .f32⟩
  | 12 => ⟨S4x256, .f32⟩
  | 13 => ⟨S_, .i32⟩
  | 14 => ⟨S1, .i32⟩
  | 15 => ⟨S4x512x256, .f32⟩
  | 16 => ⟨S4x256x16, .f32⟩
  | 17 => ⟨S4x256x16, .f32⟩
  | 18 => ⟨S4x1x256, .f32⟩
  | 19 => ⟨S4x256, .f32⟩
  | 20 => ⟨S4x256x1, .f32⟩
  | 21 => ⟨S4x1x16, .f32⟩
  | 22 => ⟨S4x16, .f32⟩
  | 23 => ⟨S4x1x16, .f32⟩
  | 24 => ⟨S4x256x16, .f32⟩
  | 25 => ⟨S4x256x16, .f32⟩
  | 26 => ⟨S4x256x16, .f32⟩
  | 27 => ⟨S4x256x16, .f32⟩
  | 28 => ⟨S4x1x16, .f32⟩
  | 29 => ⟨S4x16, .f32⟩
  | 30 => ⟨S4x1x16, .f32⟩
  | 31 => ⟨S4x256x16, .f32⟩
  | 32 => ⟨S4x256x16, .f32⟩
  | 33 => ⟨S_, .f32⟩
  | 34 => ⟨S4x256, .f32⟩
  | 35 => ⟨S_, .i32⟩
  | 36 => ⟨S1, .i32⟩
  | 37 => ⟨S4x512x256, .f32⟩
  | 38 => ⟨S4x256x16, .f32⟩
  | 39 => ⟨S4x256x16, .f32⟩
  | 40 => ⟨S4x1x256, .f32⟩
  | 41 => ⟨S4x256, .f32⟩
  | 42 => ⟨S4x256x1, .f32⟩
  | 43 => ⟨S4x1x16, .f32⟩
  | 44 => ⟨S4x16, .f32⟩
  | 45 => ⟨S4x1x16, .f32⟩
  | 46 => ⟨S4x256x16, .f32⟩
  | 47 => ⟨S4x256x16, .f32⟩
  | 48 => ⟨S4x256x16, .f32⟩
  | 49 => ⟨S4x256x16, .f32⟩
  | 50 => ⟨S4x1x16, .f32⟩
  | 51 => ⟨S4x16, .f32⟩
  | 52 => ⟨S4x1x16, .f32⟩
  | 53 => ⟨S4x256x16, .f32⟩
  | 54 => ⟨S4x256x16, .f32⟩
  | 55 => ⟨S_, .f32⟩
  | 56 => ⟨S4x256, .f32⟩
  | 57 => ⟨S_, .i32⟩
  | 58 => ⟨S1, .i32⟩
  | 59 => ⟨S4x512x256, .f32⟩
  | 60 => ⟨S4x256x16, .f32⟩
  | 61 => ⟨S4x256x16, .f32⟩
  | 62 => ⟨S4x1x256, .f32⟩
  | 63 => ⟨S4x256, .f32⟩
  | 64 => ⟨S4x256x1, .f32⟩
  | 65 => ⟨S4x1x16, .f32⟩
  | 66 => ⟨S4x16, .f32⟩
  | 67 => ⟨S4x1x16, .f32⟩
  | 68 => ⟨S4x256x16, .f32⟩
  | 69 => ⟨S4x256x16, .f32⟩
  | 70 => ⟨S4x256x16, .f32⟩
  | 71 => ⟨S4x256x16, .f32⟩
  | 72 => ⟨S4x1x16, .f32⟩
  | 73 => ⟨S4x16, .f32⟩
  | 74 => ⟨S4x1x16, .f32⟩
  | 75 => ⟨S4x256x16, .f32⟩
  | 76 => ⟨S4x256x16, .f32⟩
  | 77 => ⟨S_, .f32⟩
  | 78 => ⟨S4x256, .f32⟩
  | 79 => ⟨S_, .i32⟩
  | 80 => ⟨S1, .i32⟩
  | 81 => ⟨S4x512x256, .f32⟩
  | 82 => ⟨S4x256x16, .f32⟩
  | 83 => ⟨S4x256x16, .f32⟩
  | 84 => ⟨S4x1x256, .f32⟩
  | 85 => ⟨S4x256, .f32⟩
  | 86 => ⟨S4x256x1, .f32⟩
  | 87 => ⟨S4x1x16, .f32⟩
  | 88 => ⟨S4x16, .f32⟩
  | 89 => ⟨S4x1x16, .f32⟩
  | 90 => ⟨S4x256x16, .f32⟩
  | 91 => ⟨S4x256x16, .f32⟩
  | 92 => ⟨S4x256x16, .f32⟩
  | 93 => ⟨S4x256x16, .f32⟩
  | 94 => ⟨S4x1x16, .f32⟩
  | 95 => ⟨S4x16, .f32⟩
  | 96 => ⟨S4x1x16, .f32⟩
  | 97 => ⟨S4x256x16, .f32⟩
  | 98 => ⟨S4x256x16, .f32⟩
  | 99 => ⟨S_, .f32⟩
  | 100 => ⟨S4x256, .f32⟩
  | 101 => ⟨S_, .i32⟩
  | 102 => ⟨S1, .i32⟩
  | 103 => ⟨S4x512x256, .f32⟩
  | 104 => ⟨S4x256x16, .f32⟩
  | 105 => ⟨S4x256x16, .f32⟩
  | 106 => ⟨S4x1x256, .f32⟩
  | 107 => ⟨S4x256, .f32⟩
  | 108 => ⟨S4x256x1, .f32⟩
  | 109 => ⟨S4x1x16, .f32⟩
  | 110 => ⟨S4x16, .f32⟩
  | 111 => ⟨S4x1x16, .f32⟩
  | 112 => ⟨S4x256x16, .f32⟩
  | 113 => ⟨S4x256x16, .f32⟩
  | 114 => ⟨S4x256x16, .f32⟩
  | 115 => ⟨S4x256x16, .f32⟩
  | 116 => ⟨S4x1x16, .f32⟩
  | 117 => ⟨S4x16, .f32⟩
  | 118 => ⟨S4x1x16, .f32⟩
  | 119 => ⟨S4x256x16, .f32⟩
  | 120 => ⟨S4x256x16, .f32⟩
  | 121 => ⟨S_, .f32⟩
  | 122 => ⟨S4x256, .f32⟩
  | 123 => ⟨S_, .i32⟩
  | 124 => ⟨S1, .i32⟩
  | 125 => ⟨S4x512x256, .f32⟩
  | 126 => ⟨S4x256x16, .f32⟩
  | 127 => ⟨S4x256x16, .f32⟩
  | _ => ⟨S4x512x256, .f32⟩

abbrev hbmTy0_8 (i : Nat) : BufTy := match i % 128 with
  | 0 => ⟨S4x1x256, .f32⟩
  | 1 => ⟨S4x256, .f32⟩
  | 2 => ⟨S4x256x1, .f32⟩
  | 3 => ⟨S4x1x16, .f32⟩
  | 4 => ⟨S4x16, .f32⟩
  | 5 => ⟨S4x1x16, .f32⟩
  | 6 => ⟨S4x256x16, .f32⟩
  | 7 => ⟨S4x256x16, .f32⟩
  | 8 => ⟨S4x256x16, .f32⟩
  | 9 => ⟨S4x256x16, .f32⟩
  | 10 => ⟨S4x1x16, .f32⟩
  | 11 => ⟨S4x16, .f32⟩
  | 12 => ⟨S4x1x16, .f32⟩
  | 13 => ⟨S4x256x16, .f32⟩
  | 14 => ⟨S4x256x16, .f32⟩
  | 15 => ⟨S_, .f32⟩
  | 16 => ⟨S4x256, .f32⟩
  | 17 => ⟨S_, .i32⟩
  | 18 => ⟨S1, .i32⟩
  | 19 => ⟨S4x512x256, .f32⟩
  | 20 => ⟨S4x256x16, .f32⟩
  | 21 => ⟨S4x256x16, .f32⟩
  | 22 => ⟨S4x1x256, .f32⟩
  | 23 => ⟨S4x256, .f32⟩
  | 24 => ⟨S4x256x1, .f32⟩
  | 25 => ⟨S4x1x16, .f32⟩
  | 26 => ⟨S4x16, .f32⟩
  | 27 => ⟨S4x1x16, .f32⟩
  | 28 => ⟨S4x256x16, .f32⟩
  | 29 => ⟨S4x256x16, .f32⟩
  | 30 => ⟨S4x256x16, .f32⟩
  | 31 => ⟨S4x256x16, .f32⟩
  | 32 => ⟨S4x1x16, .f32⟩
  | 33 => ⟨S4x16, .f32⟩
  | 34 => ⟨S4x1x16, .f32⟩
  | 35 => ⟨S4x256x16, .f32⟩
  | 36 => ⟨S4x256x16, .f32⟩
  | 37 => ⟨S_, .f32⟩
  | 38 => ⟨S4x256, .f32⟩
  | 39 => ⟨S_, .i32⟩
  | 40 => ⟨S1, .i32⟩
  | 41 => ⟨S4x512x256, .f32⟩
  | 42 => ⟨S4x256x16, .f32⟩
  | 43 => ⟨S4x256x16, .f32⟩
  | 44 => ⟨S4x1x256, .f32⟩
  | 45 => ⟨S4x256, .f32⟩
  | 46 => ⟨S4x256x1, .f32⟩
  | 47 => ⟨S4x1x16, .f32⟩
  | 48 => ⟨S4x16, .f32⟩
  | 49 => ⟨S4x1x16, .f32⟩
  | 50 => ⟨S4x256x16, .f32⟩
  | 51 => ⟨S4x256x16, .f32⟩
  | 52 => ⟨S4x256x16, .f32⟩
  | 53 => ⟨S4x256x16, .f32⟩
  | 54 => ⟨S4x1x16, .f32⟩
  | 55 => ⟨S4x16, .f32⟩
  | 56 => ⟨S4x1x16, .f32⟩
  | 57 => ⟨S4x256x16, .f32⟩
  | 58 => ⟨S4x256x16, .f32⟩
  | 59 => ⟨S_, .f32⟩
  | 60 => ⟨S4x256, .f32⟩
  | 61 => ⟨S_, .i32⟩
  | 62 => ⟨S1, .i32⟩
  | 63 => ⟨S4x512x256, .f32⟩
  | 64 => ⟨S4x256x16, .f32⟩
  | 65 => ⟨S4x256x16, .f32⟩
  | 66 => ⟨S4x1x256, .f32⟩
  | 67 => ⟨S4x256, .f32⟩
  | 68 => ⟨S4x256x1, .f32⟩
  | 69 => ⟨S4x1x16, .f32⟩
  | 70 => ⟨S4x16, .f32⟩
  | 71 => ⟨S4x1x16, .f32⟩
  | 72 => ⟨S4x256x16, .f32⟩
  | 73 => ⟨S4x256x16, .f32⟩
  | 74 => ⟨S4x256x16, .f32⟩
  | 75 => ⟨S4x256x16, .f32⟩
  | 76 => ⟨S4x1x16, .f32⟩
  | 77 => ⟨S4x16, .f32⟩
  | 78 => ⟨S4x1x16, .f32⟩
  | 79 => ⟨S4x256x16, .f32⟩
  | 80 => ⟨S4x256x16, .f32⟩
  | 81 => ⟨S_, .f32⟩
  | 82 => ⟨S4x256, .f32⟩
  | 83 => ⟨S_, .i32⟩
  | 84 => ⟨S1, .i32⟩
  | 85 => ⟨S4x512x256, .f32⟩
  | 86 => ⟨S4x256x16, .f32⟩
  | 87 => ⟨S4x256x16, .f32⟩
  | 88 => ⟨S4x1x256, .f32⟩
  | 89 => ⟨S4x256, .f32⟩
  | 90 => ⟨S4x256x1, .f32⟩
  | 91 => ⟨S4x1x16, .f32⟩
  | 92 => ⟨S4x16, .f32⟩
  | 93 => ⟨S4x1x16, .f32⟩
  | 94 => ⟨S4x256x16, .f32⟩
  | 95 => ⟨S4x256x16, .f32⟩
  | 96 => ⟨S4x256x16, .f32⟩
  | 97 => ⟨S4x256x16, .f32⟩
  | 98 => ⟨S4x1x16, .f32⟩
  | 99 => ⟨S4x16, .f32⟩
  | 100 => ⟨S4x1x16, .f32⟩
  | 101 => ⟨S4x256x16, .f32⟩
  | 102 => ⟨S4x256x16, .f32⟩
  | 103 => ⟨S_, .f32⟩
  | 104 => ⟨S4x256, .f32⟩
  | 105 => ⟨S_, .i32⟩
  | 106 => ⟨S1, .i32⟩
  | 107 => ⟨S4x512x256, .f32⟩
  | 108 => ⟨S4x256x16, .f32⟩
  | 109 => ⟨S4x256x16, .f32⟩
  | 110 => ⟨S4x1x256, .f32⟩
  | 111 => ⟨S4x256, .f32⟩
  | 112 => ⟨S4x256x1, .f32⟩
  | 113 => ⟨S4x1x16, .f32⟩
  | 114 => ⟨S4x16, .f32⟩
  | 115 => ⟨S4x1x16, .f32⟩
  | 116 => ⟨S4x256x16, .f32⟩
  | 117 => ⟨S4x256x16, .f32⟩
  | 118 => ⟨S4x256x16, .f32⟩
  | 119 => ⟨S4x256x16, .f32⟩
  | 120 => ⟨S4x1x16, .f32⟩
  | 121 => ⟨S4x16, .f32⟩
  | 122 => ⟨S4x1x16, .f32⟩
  | 123 => ⟨S4x256x16, .f32⟩
  | 124 => ⟨S4x256x16, .f32⟩
  | 125 => ⟨S_, .f32⟩
  | 126 => ⟨S4x256, .f32⟩
  | 127 => ⟨S_, .i32⟩
  | _ => ⟨S4x512x256, .f32⟩

abbrev hbmTy0_9 (i : Nat) : BufTy := match i % 128 with
  | 0 => ⟨S1, .i32⟩
  | 1 => ⟨S4x512x256, .f32⟩
  | 2 => ⟨S4x256x16, .f32⟩
  | 3 => ⟨S4x256x16, .f32⟩
  | 4 => ⟨S4x1x256, .f32⟩
  | 5 => ⟨S4x256, .f32⟩
  | 6 => ⟨S4x256x1, .f32⟩
  | 7 => ⟨S4x1x16, .f32⟩
  | 8 => ⟨S4x16, .f32⟩
  | 9 => ⟨S4x1x16, .f32⟩
  | 10 => ⟨S4x256x16, .f32⟩
  | 11 => ⟨S4x256x16, .f32⟩
  | 12 => ⟨S4x256x16, .f32⟩
  | 13 => ⟨S4x256x16, .f32⟩
  | 14 => ⟨S4x1x16, .f32⟩
  | 15 => ⟨S4x16, .f32⟩
  | 16 => ⟨S4x1x16, .f32⟩
  | 17 => ⟨S4x256x16, .f32⟩
  | 18 => ⟨S4x256x16, .f32⟩
  | 19 => ⟨S_, .f32⟩
  | 20 => ⟨S4x256, .f32⟩
  | 21 => ⟨S_, .i32⟩
  | 22 => ⟨S1, .i32⟩
  | 23 => ⟨S4x512x256, .f32⟩
  | 24 => ⟨S4x256x16, .f32⟩
  | 25 => ⟨S4x256x16, .f32⟩
  | 26 => ⟨S4x1x256, .f32⟩
  | 27 => ⟨S4x256, .f32⟩
  | 28 => ⟨S4x256x1, .f32⟩
  | 29 => ⟨S4x1x16, .f32⟩
  | 30 => ⟨S4x16, .f32⟩
  | 31 => ⟨S4x1x16, .f32⟩
  | 32 => ⟨S4x256x16, .f32⟩
  | 33 => ⟨S4x256x16, .f32⟩
  | 34 => ⟨S4x256x16, .f32⟩
  | 35 => ⟨S4x256x16, .f32⟩
  | 36 => ⟨S4x1x16, .f32⟩
  | 37 => ⟨S4x16, .f32⟩
  | 38 => ⟨S4x1x16, .f32⟩
  | 39 => ⟨S4x256x16, .f32⟩
  | 40 => ⟨S4x256x16, .f32⟩
  | 41 => ⟨S_, .f32⟩
  | 42 => ⟨S4x256, .f32⟩
  | 43 => ⟨S_, .i32⟩
  | 44 => ⟨S1, .i32⟩
  | 45 => ⟨S4x512x256, .f32⟩
  | 46 => ⟨S4x256x16, .f32⟩
  | 47 => ⟨S4x256x16, .f32⟩
  | 48 => ⟨S4x1x256, .f32⟩
  | 49 => ⟨S4x256, .f32⟩
  | 50 => ⟨S4x256x1, .f32⟩
  | 51 => ⟨S4x1x16, .f32⟩
  | 52 => ⟨S4x16, .f32⟩
  | 53 => ⟨S4x1x16, .f32⟩
  | 54 => ⟨S4x256x16, .f32⟩
  | 55 => ⟨S4x256x16, .f32⟩
  | 56 => ⟨S4x256x16, .f32⟩
  | 57 => ⟨S4x256x16, .f32⟩
  | 58 => ⟨S4x1x16, .f32⟩
  | 59 => ⟨S4x16, .f32⟩
  | 60 => ⟨S4x1x16, .f32⟩
  | 61 => ⟨S4x256x16, .f32⟩
  | 62 => ⟨S4x256x16, .f32⟩
  | 63 => ⟨S_, .f32⟩
  | 64 => ⟨S4x256, .f32⟩
  | 65 => ⟨S_, .i32⟩
  | 66 => ⟨S1, .i32⟩
  | 67 => ⟨S4x512x256, .f32⟩
  | 68 => ⟨S4x256x16, .f32⟩
  | 69 => ⟨S4x256x16, .f32⟩
  | 70 => ⟨S4x1x256, .f32⟩
  | 71 => ⟨S4x256, .f32⟩
  | 72 => ⟨S4x256x1, .f32⟩
  | 73 => ⟨S4x1x16, .f32⟩
  | 74 => ⟨S4x16, .f32⟩
  | 75 => ⟨S4x1x16, .f32⟩
  | 76 => ⟨S4x256x16, .f32⟩
  | 77 => ⟨S4x256x16, .f32⟩
  | 78 => ⟨S4x256x16, .f32⟩
  | 79 => ⟨S4x256x16, .f32⟩
  | 80 => ⟨S4x1x16, .f32⟩
  | 81 => ⟨S4x16, .f32⟩
  | 82 => ⟨S4x1x16, .f32⟩
  | 83 => ⟨S4x256x16, .f32⟩
  | 84 => ⟨S4x256x16, .f32⟩
  | 85 => ⟨S_, .f32⟩
  | 86 => ⟨S4x256, .f32⟩
  | 87 => ⟨S_, .i32⟩
  | 88 => ⟨S1, .i32⟩
  | 89 => ⟨S4x512x256, .f32⟩
  | 90 => ⟨S4x256x16, .f32⟩
  | 91 => ⟨S4x256x16, .f32⟩
  | 92 => ⟨S4x1x256, .f32⟩
  | 93 => ⟨S4x256, .f32⟩
  | 94 => ⟨S4x256x1, .f32⟩
  | 95 => ⟨S4x1x16, .f32⟩
  | 96 => ⟨S4x16, .f32⟩
  | 97 => ⟨S4x1x16, .f32⟩
  | 98 => ⟨S4x256x16, .f32⟩
  | 99 => ⟨S4x256x16, .f32⟩
  | 100 => ⟨S4x256x16, .f32⟩
  | 101 => ⟨S4x256x16, .f32⟩
  | 102 => ⟨S4x1x16, .f32⟩
  | 103 => ⟨S4x16, .f32⟩
  | 104 => ⟨S4x1x16, .f32⟩
  | 105 => ⟨S4x256x16, .f32⟩
  | 106 => ⟨S4x256x16, .f32⟩
  | 107 => ⟨S_, .f32⟩
  | 108 => ⟨S4x256, .f32⟩
  | 109 => ⟨S_, .i32⟩
  | 110 => ⟨S1, .i32⟩
  | 111 => ⟨S4x512x256, .f32⟩
  | 112 => ⟨S4x256x16, .f32⟩
  | 113 => ⟨S4x256x16, .f32⟩
  | 114 => ⟨S4x1x256, .f32⟩
  | 115 => ⟨S4x256, .f32⟩
  | 116 => ⟨S4x256x1, .f32⟩
  | 117 => ⟨S4x1x16, .f32⟩
  | 118 => ⟨S4x16, .f32⟩
  | 119 => ⟨S4x1x16, .f32⟩
  | 120 => ⟨S4x256x16, .f32⟩
  | 121 => ⟨S4x256x16, .f32⟩
  | 122 => ⟨S4x256x16, .f32⟩
  | 123 => ⟨S4x256x16, .f32⟩
  | 124 => ⟨S4x1x16, .f32⟩
  | 125 => ⟨S4x16, .f32⟩
  | 126 => ⟨S4x1x16, .f32⟩
  | 127 => ⟨S4x256x16, .f32⟩
  | _ => ⟨S4x512x256, .f32⟩

abbrev hbmTy0_10 (i : Nat) : BufTy := match i % 128 with
  | 0 => ⟨S4x256x16, .f32⟩
  | 1 => ⟨S_, .f32⟩
  | 2 => ⟨S4x256, .f32⟩
  | 3 => ⟨S_, .i32⟩
  | 4 => ⟨S1, .i32⟩
  | 5 => ⟨S4x512x256, .f32⟩
  | 6 => ⟨S4x256x16, .f32⟩
  | 7 => ⟨S4x256x16, .f32⟩
  | 8 => ⟨S4x1x256, .f32⟩
  | 9 => ⟨S4x256, .f32⟩
  | 10 => ⟨S4x256x1, .f32⟩
  | 11 => ⟨S4x1x16, .f32⟩
  | 12 => ⟨S4x16, .f32⟩
  | 13 => ⟨S4x1x16, .f32⟩
  | 14 => ⟨S4x256x16, .f32⟩
  | 15 => ⟨S4x256x16, .f32⟩
  | 16 => ⟨S4x256x16, .f32⟩
  | 17 => ⟨S4x256x16, .f32⟩
  | 18 => ⟨S4x1x16, .f32⟩
  | 19 => ⟨S4x16, .f32⟩
  | 20 => ⟨S4x1x16, .f32⟩
  | 21 => ⟨S4x256x16, .f32⟩
  | 22 => ⟨S4x256x16, .f32⟩
  | 23 => ⟨S_, .f32⟩
  | 24 => ⟨S4x256, .f32⟩
  | 25 => ⟨S_, .i32⟩
  | 26 => ⟨S1, .i32⟩
  | 27 => ⟨S4x512x256, .f32⟩
  | 28 => ⟨S4x256x16, .f32⟩
  | 29 => ⟨S4x256x16, .f32⟩
  | 30 => ⟨S4x1x256, .f32⟩
  | 31 => ⟨S4x256, .f32⟩
  | 32 => ⟨S4x256x1, .f32⟩
  | 33 => ⟨S4x1x16, .f32⟩
  | 34 => ⟨S4x16, .f32⟩
  | 35 => ⟨S4x1x16, .f32⟩
  | 36 => ⟨S4x256x16, .f32⟩
  | 37 => ⟨S4x256x16, .f32⟩
  | 38 => ⟨S4x256x16, .f32⟩
  | 39 => ⟨S4x256x16, .f32⟩
  | 40 => ⟨S4x1x16, .f32⟩
  | 41 => ⟨S4x16, .f32⟩
  | 42 => ⟨S4x1x16, .f32⟩
  | 43 => ⟨S4x256x16, .f32⟩
  | 44 => ⟨S4x256x16, .f32⟩
  | 45 => ⟨S_, .f32⟩
  | 46 => ⟨S4x256, .f32⟩
  | 47 => ⟨S_, .i32⟩
  | 48 => ⟨S1, .i32⟩
  | 49 => ⟨S4x512x256, .f32⟩
  | 50 => ⟨S4x256x16, .f32⟩
  | 51 => ⟨S4x256x16, .f32⟩
  | 52 => ⟨S4x1x256, .f32⟩
  | 53 => ⟨S4x256, .f32⟩
  | 54 => ⟨S4x256x1, .f32⟩
  | 55 => ⟨S4x1x16, .f32⟩
  | 56 => ⟨S4x16, .f32⟩
  | 57 => ⟨S4x1x16, .f32⟩
  | 58 => ⟨S4x256x16, .f32⟩
  | 59 => ⟨S4x256x16, .f32⟩
  | 60 => ⟨S4x256x16, .f32⟩
  | 61 => ⟨S4x256x16, .f32⟩
  | 62 => ⟨S4x1x16, .f32⟩
  | 63 => ⟨S4x16, .f32⟩
  | 64 => ⟨S4x1x16, .f32⟩
  | 65 => ⟨S4x256x16, .f32⟩
  | 66 => ⟨S4x256x16, .f32⟩
  | 67 => ⟨S_, .f32⟩
  | 68 => ⟨S4x256, .f32⟩
  | 69 => ⟨S_, .i32⟩
  | 70 => ⟨S1, .i32⟩
  | 71 => ⟨S4x512x256, .f32⟩
  | 72 => ⟨S4x256x16, .f32⟩
  | 73 => ⟨S4x256x16, .f32⟩
  | 74 => ⟨S4x1x256, .f32⟩
  | 75 => ⟨S4x256, .f32⟩
  | 76 => ⟨S4x256x1, .f32⟩
  | 77 => ⟨S4x1x16, .f32⟩
  | 78 => ⟨S4x16, .f32⟩
  | 79 => ⟨S4x1x16, .f32⟩
  | 80 => ⟨S4x256x16, .f32⟩
  | 81 => ⟨S4x256x16, .f32⟩
  | 82 => ⟨S4x256x16, .f32⟩
  | 83 => ⟨S4x256x16, .f32⟩
  | 84 => ⟨S4x1x16, .f32⟩
  | 85 => ⟨S4x16, .f32⟩
  | 86 => ⟨S4x1x16, .f32⟩
  | 87 => ⟨S4x256x16, .f32⟩
  | 88 => ⟨S4x256x16, .f32⟩
  | 89 => ⟨S_, .f32⟩
  | 90 => ⟨S4x256, .f32⟩
  | 91 => ⟨S_, .i32⟩
  | 92 => ⟨S1, .i32⟩
  | 93 => ⟨S4x512x256, .f32⟩
  | 94 => ⟨S4x256x16, .f32⟩
  | 95 => ⟨S4x256x16, .f32⟩
  | 96 => ⟨S4x1x256, .f32⟩
  | 97 => ⟨S4x256, .f32⟩
  | 98 => ⟨S4x256x1, .f32⟩
  | 99 => ⟨S4x1x16, .f32⟩
  | 100 => ⟨S4x16, .f32⟩
  | 101 => ⟨S4x1x16, .f32⟩
  | 102 => ⟨S4x256x16, .f32⟩
  | 103 => ⟨S4x256x16, .f32⟩
  | 104 => ⟨S4x256x16, .f32⟩
  | 105 => ⟨S4x256x16, .f32⟩
  | 106 => ⟨S4x1x16, .f32⟩
  | 107 => ⟨S4x16, .f32⟩
  | 108 => ⟨S4x1x16, .f32⟩
  | 109 => ⟨S4x256x16, .f32⟩
  | 110 => ⟨S4x256x16, .f32⟩
  | 111 => ⟨S_, .f32⟩
  | 112 => ⟨S4x256, .f32⟩
  | 113 => ⟨S_, .i32⟩
  | 114 => ⟨S1, .i32⟩
  | 115 => ⟨S4x512x256, .f32⟩
  | 116 => ⟨S4x256x16, .f32⟩
  | 117 => ⟨S4x256x16, .f32⟩
  | 118 => ⟨S4x1x256, .f32⟩
  | 119 => ⟨S4x256, .f32⟩
  | 120 => ⟨S4x256x1, .f32⟩
  | 121 => ⟨S4x1x16, .f32⟩
  | 122 => ⟨S4x16, .f32⟩
  | 123 => ⟨S4x1x16, .f32⟩
  | 124 => ⟨S4x256x16, .f32⟩
  | 125 => ⟨S4x256x16, .f32⟩
  | 126 => ⟨S4x256x16, .f32⟩
  | 127 => ⟨S4x256x16, .f32⟩
  | _ => ⟨S4x512x256, .f32⟩

abbrev hbmTy0_11 (i : Nat) : BufTy := match i % 128 with
  | 0 => ⟨S4x1x16, .f32⟩
  | 1 => ⟨S4x16, .f32⟩
  | 2 => ⟨S4x1x16, .f32⟩
  | 3 => ⟨S4x256x16, .f32⟩
  | 4 => ⟨S4x256x16, .f32⟩
  | 5 => ⟨S_, .f32⟩
  | 6 => ⟨S4x256, .f32⟩
  | 7 => ⟨S_, .i32⟩
  | 8 => ⟨S1, .i32⟩
  | 9 => ⟨S4x512x256, .f32⟩
  | 10 => ⟨S4x256x16, .f32⟩
  | 11 => ⟨S4x256x16, .f32⟩
  | 12 => ⟨S4x1x256, .f32⟩
  | 13 => ⟨S4x256, .f32⟩
  | 14 => ⟨S4x256x1, .f32⟩
  | 15 => ⟨S4x1x16, .f32⟩
  | 16 => ⟨S4x16, .f32⟩
  | 17 => ⟨S4x1x16, .f32⟩
  | 18 => ⟨S4x256x16, .f32⟩
  | 19 => ⟨S4x256x16, .f32⟩
  | 20 => ⟨S4x256x16, .f32⟩
  | 21 => ⟨S4x256x16, .f32⟩
  | 22 => ⟨S4x1x16, .f32⟩
  | 23 => ⟨S4x16, .f32⟩
  | 24 => ⟨S4x1x16, .f32⟩
  | 25 => ⟨S4x256x16, .f32⟩
  | 26 => ⟨S4x256x16, .f32⟩
  | 27 => ⟨S_, .f32⟩
  | 28 => ⟨S4x256, .f32⟩
  | 29 => ⟨S_, .i32⟩
  | 30 => ⟨S1, .i32⟩
  | 31 => ⟨S4x512x256, .f32⟩
  | 32 => ⟨S4x256x16, .f32⟩
  | 33 => ⟨S4x256x16, .f32⟩
  | 34 => ⟨S4x1x256, .f32⟩
  | 35 => ⟨S4x256, .f32⟩
  | 36 => ⟨S4x256x1, .f32⟩
  | 37 => ⟨S4x1x16, .f32⟩
  | 38 => ⟨S4x16, .f32⟩
  | 39 => ⟨S4x1x16, .f32⟩
  | 40 => ⟨S4x256x16, .f32⟩
  | 41 => ⟨S4x256x16, .f32⟩
  | 42 => ⟨S4x256x16, .f32⟩
  | 43 => ⟨S4x256x16, .f32⟩
  | 44 => ⟨S4x1x16, .f32⟩
  | 45 => ⟨S4x16, .f32⟩
  | 46 => ⟨S4x1x16, .f32⟩
  | 47 => ⟨S4x256x16, .f32⟩
  | 48 => ⟨S4x256x16, .f32⟩
  | 49 => ⟨S_, .f32⟩
  | 50 => ⟨S4x256, .f32⟩
  | 51 => ⟨S_, .i32⟩
  | 52 => ⟨S1, .i32⟩
  | 53 => ⟨S4x512x256, .f32⟩
  | 54 => ⟨S4x256x16, .f32⟩
  | 55 => ⟨S4x256x16, .f32⟩
  | 56 => ⟨S4x1x256, .f32⟩
  | 57 => ⟨S4x256, .f32⟩
  | 58 => ⟨S4x256x1, .f32⟩
  | 59 => ⟨S4x1x16, .f32⟩
  | 60 => ⟨S4x16, .f32⟩
  | 61 => ⟨S4x1x16, .f32⟩
  | 62 => ⟨S4x256x16, .f32⟩
  | 63 => ⟨S4x256x16, .f32⟩
  | 64 => ⟨S4x256x16, .f32⟩
  | 65 => ⟨S4x256x16, .f32⟩
  | 66 => ⟨S4x1x16, .f32⟩
  | 67 => ⟨S4x16, .f32⟩
  | 68 => ⟨S4x1x16, .f32⟩
  | 69 => ⟨S4x256x16, .f32⟩
  | 70 => ⟨S4x256x16, .f32⟩
  | 71 => ⟨S_, .f32⟩
  | 72 => ⟨S4x256, .f32⟩
  | 73 => ⟨S_, .i32⟩
  | 74 => ⟨S1, .i32⟩
  | 75 => ⟨S4x512x256, .f32⟩
  | 76 => ⟨S4x256x16, .f32⟩
  | 77 => ⟨S4x256x16, .f32⟩
  | 78 => ⟨S4x1x256, .f32⟩
  | 79 => ⟨S4x256, .f32⟩
  | 80 => ⟨S4x256x1, .f32⟩
  | 81 => ⟨S4x1x16, .f32⟩
  | 82 => ⟨S4x16, .f32⟩
  | 83 => ⟨S4x1x16, .f32⟩
  | 84 => ⟨S4x256x16, .f32⟩
  | 85 => ⟨S4x256x16, .f32⟩
  | 86 => ⟨S4x256x16, .f32⟩
  | 87 => ⟨S4x256x16, .f32⟩
  | 88 => ⟨S4x1x16, .f32⟩
  | 89 => ⟨S4x16, .f32⟩
  | 90 => ⟨S4x1x16, .f32⟩
  | 91 => ⟨S4x256x16, .f32⟩
  | 92 => ⟨S4x256x16, .f32⟩
  | 93 => ⟨S_, .f32⟩
  | 94 => ⟨S4x256, .f32⟩
  | 95 => ⟨S_, .i32⟩
  | 96 => ⟨S1, .i32⟩
  | 97 => ⟨S4x512x256, .f32⟩
  | 98 => ⟨S4x256x16, .f32⟩
  | 99 => ⟨S4x256x16, .f32⟩
  | 100 => ⟨S4x1x256, .f32⟩
  | 101 => ⟨S4x256, .f32⟩
  | 102 => ⟨S4x256x1, .f32⟩
  | 103 => ⟨S4x1x16, .f32⟩
  | 104 => ⟨S4x16, .f32⟩
  | 105 => ⟨S4x1x16, .f32⟩
  | 106 => ⟨S4x256x16, .f32⟩
  | 107 => ⟨S4x256x16, .f32⟩
  | 108 => ⟨S4x256x16, .f32⟩
  | 109 => ⟨S4x256x16, .f32⟩
  | 110 => ⟨S4x1x16, .f32⟩
  | 111 => ⟨S4x16, .f32⟩
  | 112 => ⟨S4x1x16, .f32⟩
  | 113 => ⟨S4x256x16, .f32⟩
  | 114 => ⟨S4x256x16, .f32⟩
  | 115 => ⟨S_, .f32⟩
  | 116 => ⟨S4x256, .f32⟩
  | 117 => ⟨S_, .i32⟩
  | 118 => ⟨S1, .i32⟩
  | 119 => ⟨S4x512x256, .f32⟩
  | 120 => ⟨S4x256x16, .f32⟩
  | 121 => ⟨S4x256x16, .f32⟩
  | 122 => ⟨S4x1x256, .f32⟩
  | 123 => ⟨S4x256, .f32⟩
  | 124 => ⟨S4x256x1, .f32⟩
  | 125 => ⟨S4x1x16, .f32⟩
  | 126 => ⟨S4x16, .f32⟩
  | 127 => ⟨S4x1x16, .f32⟩
  | _ => ⟨S4x512x256, .f32⟩

abbrev hbmTy0_12 (i : Nat) : BufTy := match i % 128 with
  | 0 => ⟨S4x256x16, .f32⟩
  | 1 => ⟨S4x256x16, .f32⟩
  | 2 => ⟨S4x256x16, .f32⟩
  | 3 => ⟨S4x256x16, .f32⟩
  | 4 => ⟨S4x1x16, .f32⟩
  | 5 => ⟨S4x16, .f32⟩
  | 6 => ⟨S4x1x16, .f32⟩
  | 7 => ⟨S4x256x16, .f32⟩
  | 8 => ⟨S4x256x16, .f32⟩
  | 9 => ⟨S_, .f32⟩
  | 10 => ⟨S4x256, .f32⟩
  | 11 => ⟨S_, .i32⟩
  | 12 => ⟨S1, .i32⟩
  | 13 => ⟨S4x512x256, .f32⟩
  | 14 => ⟨S4x256x16, .f32⟩
  | 15 => ⟨S4x256x16, .f32⟩
  | 16 => ⟨S4x1x256, .f32⟩
  | 17 => ⟨S4x256, .f32⟩
  | 18 => ⟨S4x256x1, .f32⟩
  | 19 => ⟨S4x1x16, .f32⟩
  | 20 => ⟨S4x16, .f32⟩
  | 21 => ⟨S4x1x16, .f32⟩
  | 22 => ⟨S4x256x16, .f32⟩
  | 23 => ⟨S4x256x16, .f32⟩
  | 24 => ⟨S4x256x16, .f32⟩
  | 25 => ⟨S4x256x16, .f32⟩
  | 26 => ⟨S4x1x16, .f32⟩
  | 27 => ⟨S4x16, .f32⟩
  | 28 => ⟨S4x1x16, .f32⟩
  | 29 => ⟨S4x256x16, .f32⟩
  | 30 => ⟨S4x256x16, .f32⟩
  | 31 => ⟨S_, .f32⟩
  | 32 => ⟨S4x256, .f32⟩
  | 33 => ⟨S_, .i32⟩
  | 34 => ⟨S1, .i32⟩
  | 35 => ⟨S4x512x256, .f32⟩
  | 36 => ⟨S4x256x16, .f32⟩
  | 37 => ⟨S4x256x16, .f32⟩
  | 38 => ⟨S4x1x256, .f32⟩
  | 39 => ⟨S4x256, .f32⟩
  | 40 => ⟨S4x256x1, .f32⟩
  | 41 => ⟨S4x1x16, .f32⟩
  | 42 => ⟨S4x16, .f32⟩
  | 43 => ⟨S4x1x16, .f32⟩
  | 44 => ⟨S4x256x16, .f32⟩
  | 45 => ⟨S4x256x16, .f32⟩
  | 46 => ⟨S4x256x16, .f32⟩
  | 47 => ⟨S4x256x16, .f32⟩
  | 48 => ⟨S4x1x16, .f32⟩
  | 49 => ⟨S4x16, .f32⟩
  | 50 => ⟨S4x1x16, .f32⟩
  | 51 => ⟨S4x256x16, .f32⟩
  | 52 => ⟨S4x256x16, .f32⟩
  | 53 => ⟨S_, .f32⟩
  | 54 => ⟨S4x256, .f32⟩
  | 55 => ⟨S_, .i32⟩
  | 56 => ⟨S1, .i32⟩
  | 57 => ⟨S4x512x256, .f32⟩
  | 58 => ⟨S4x256x16, .f32⟩
  | 59 => ⟨S4x256x16, .f32⟩
  | 60 => ⟨S4x1x256, .f32⟩
  | 61 => ⟨S4x256, .f32⟩
  | 62 => ⟨S4x256x1, .f32⟩
  | 63 => ⟨S4x1x16, .f32⟩
  | 64 => ⟨S4x16, .f32⟩
  | 65 => ⟨S4x1x16, .f32⟩
  | 66 => ⟨S4x256x16, .f32⟩
  | 67 => ⟨S4x256x16, .f32⟩
  | 68 => ⟨S4x256x16, .f32⟩
  | 69 => ⟨S4x256x16, .f32⟩
  | 70 => ⟨S4x1x16, .f32⟩
  | 71 => ⟨S4x16, .f32⟩
  | 72 => ⟨S4x1x16, .f32⟩
  | 73 => ⟨S4x256x16, .f32⟩
  | 74 => ⟨S4x256x16, .f32⟩
  | 75 => ⟨S_, .f32⟩
  | 76 => ⟨S4x256, .f32⟩
  | 77 => ⟨S_, .i32⟩
  | 78 => ⟨S1, .i32⟩
  | 79 => ⟨S4x512x256, .f32⟩
  | 80 => ⟨S4x256x16, .f32⟩
  | 81 => ⟨S4x256x16, .f32⟩
  | 82 => ⟨S4x1x256, .f32⟩
  | 83 => ⟨S4x256, .f32⟩
  | 84 => ⟨S4x256x1, .f32⟩
  | 85 => ⟨S4x1x16, .f32⟩
  | 86 => ⟨S4x16, .f32⟩
  | 87 => ⟨S4x1x16, .f32⟩
  | 88 => ⟨S4x256x16, .f32⟩
  | 89 => ⟨S4x256x16, .f32⟩
  | 90 => ⟨S4x256x16, .f32⟩
  | 91 => ⟨S4x256x16, .f32⟩
  | 92 => ⟨S4x1x16, .f32⟩
  | 93 => ⟨S4x16, .f32⟩
  | 94 => ⟨S4x1x16, .f32⟩
  | 95 => ⟨S4x256x16, .f32⟩
  | 96 => ⟨S4x256x16, .f32⟩
  | 97 => ⟨S_, .f32⟩
  | 98 => ⟨S4x256, .f32⟩
  | 99 => ⟨S_, .i32⟩
  | 100 => ⟨S1, .i32⟩
  | 101 => ⟨S4x512x256, .f32⟩
  | 102 => ⟨S4x256x16, .f32⟩
  | 103 => ⟨S4x256x16, .f32⟩
  | 104 => ⟨S4x1x256, .f32⟩
  | 105 => ⟨S4x256, .f32⟩
  | 106 => ⟨S4x256x1, .f32⟩
  | 107 => ⟨S4x1x16, .f32⟩
  | 108 => ⟨S4x16, .f32⟩
  | 109 => ⟨S4x1x16, .f32⟩
  | 110 => ⟨S4x256x16, .f32⟩
  | 111 => ⟨S4x256x16, .f32⟩
  | 112 => ⟨S4x256x16, .f32⟩
  | 113 => ⟨S4x256x16, .f32⟩
  | 114 => ⟨S4x1x16, .f32⟩
  | 115 => ⟨S4x16, .f32⟩
  | 116 => ⟨S4x1x16, .f32⟩
  | 117 => ⟨S4x256x16, .f32⟩
  | 118 => ⟨S4x256x16, .f32⟩
  | 119 => ⟨S_, .f32⟩
  | 120 => ⟨S4x256, .f32⟩
  | 121 => ⟨S_, .i32⟩
  | 122 => ⟨S1, .i32⟩
  | 123 => ⟨S4x512x256, .f32⟩
  | 124 => ⟨S4x256x16, .f32⟩
  | 125 => ⟨S4x256x16, .f32⟩
  | 126 => ⟨S4x1x256, .f32⟩
  | 127 => ⟨S4x256, .f32⟩
  | _ => ⟨S4x512x256, .f32⟩

abbrev hbmTy0_13 (i : Nat) : BufTy := match i % 128 with
  | 0 => ⟨S4x256x1, .f32⟩
  | 1 => ⟨S4x1x16, .f32⟩
  | 2 => ⟨S4x16, .f32⟩
  | 3 => ⟨S4x1x16, .f32⟩
  | 4 => ⟨S4x256x16, .f32⟩
  | 5 => ⟨S4x256x16, .f32⟩
  | 6 => ⟨S4x256x16, .f32⟩
  | 7 => ⟨S4x256x16, .f32⟩
  | 8 => ⟨S4x1x16, .f32⟩
  | 9 => ⟨S4x16, .f32⟩
  | 10 => ⟨S4x1x16, .f32⟩
  | 11 => ⟨S4x256x16, .f32⟩
  | 12 => ⟨S4x256x16, .f32⟩
  | 13 => ⟨S_, .f32⟩
  | 14 => ⟨S4x256, .f32⟩
  | 15 => ⟨S_, .i32⟩
  | 16 => ⟨S1, .i32⟩
  | 17 => ⟨S4x512x256, .f32⟩
  | 18 => ⟨S4x256x16, .f32⟩
  | 19 => ⟨S4x256x16, .f32⟩
  | 20 => ⟨S4x1x256, .f32⟩
  | 21 => ⟨S4x256, .f32⟩
  | 22 => ⟨S4x256x1, .f32⟩
  | 23 => ⟨S4x1x16, .f32⟩
  | 24 => ⟨S4x16, .f32⟩
  | 25 => ⟨S4x1x16, .f32⟩
  | 26 => ⟨S4x256x16, .f32⟩
  | 27 => ⟨S4x256x16, .f32⟩
  | 28 => ⟨S4x256x16, .f32⟩
  | 29 => ⟨S4x256x16, .f32⟩
  | 30 => ⟨S4x1x16, .f32⟩
  | 31 => ⟨S4x16, .f32⟩
  | 32 => ⟨S4x1x16, .f32⟩
  | 33 => ⟨S4x256x16, .f32⟩
  | 34 => ⟨S4x256x16, .f32⟩
  | 35 => ⟨S_, .f32⟩
  | 36 => ⟨S4x256, .f32⟩
  | 37 => ⟨S_, .i32⟩
  | 38 => ⟨S1, .i32⟩
  | 39 => ⟨S4x512x256, .f32⟩
  | 40 => ⟨S4x256x16, .f32⟩
  | 41 => ⟨S4x256x16, .f32⟩
  | 42 => ⟨S4x1x256, .f32⟩
  | 43 => ⟨S4x256, .f32⟩
  | 44 => ⟨S4x256x1, .f32⟩
  | 45 => ⟨S4x1x16, .f32⟩
  | 46 => ⟨S4x16, .f32⟩
  | 47 => ⟨S4x1x16, .f32⟩
  | 48 => ⟨S4x256x16, .f32⟩
  | 49 => ⟨S4x256x16, .f32⟩
  | 50 => ⟨S4x256x16, .f32⟩
  | 51 => ⟨S4x256x16, .f32⟩
  | 52 => ⟨S4x1x16, .f32⟩
  | 53 => ⟨S4x16, .f32⟩
  | 54 => ⟨S4x1x16, .f32⟩
  | 55 => ⟨S4x256x16, .f32⟩
  | 56 => ⟨S4x256x16, .f32⟩
  | 57 => ⟨S_, .f32⟩
  | 58 => ⟨S4x256, .f32⟩
  | 59 => ⟨S_, .i32⟩
  | 60 => ⟨S1, .i32⟩
  | 61 => ⟨S4x512x256, .f32⟩
  | 62 => ⟨S4x256x16, .f32⟩
  | 63 => ⟨S4x256x16, .f32⟩
  | 64 => ⟨S4x1x256, .f32⟩
  | 65 => ⟨S4x256, .f32⟩
  | 66 => ⟨S4x256x1, .f32⟩
  | 67 => ⟨S4x1x16, .f32⟩
  | 68 => ⟨S4x16, .f32⟩
  | 69 => ⟨S4x1x16, .f32⟩
  | 70 => ⟨S4x256x16, .f32⟩
  | 71 => ⟨S4x256x16, .f32⟩
  | 72 => ⟨S4x256x16, .f32⟩
  | 73 => ⟨S4x256x16, .f32⟩
  | 74 => ⟨S4x1x16, .f32⟩
  | 75 => ⟨S4x16, .f32⟩
  | 76 => ⟨S4x1x16, .f32⟩
  | 77 => ⟨S4x256x16, .f32⟩
  | 78 => ⟨S4x256x16, .f32⟩
  | 79 => ⟨S_, .f32⟩
  | 80 => ⟨S4x256, .f32⟩
  | 81 => ⟨S_, .i32⟩
  | 82 => ⟨S1, .i32⟩
  | 83 => ⟨S4x512x256, .f32⟩
  | 84 => ⟨S4x256x16, .f32⟩
  | 85 => ⟨S4x256x16, .f32⟩
  | 86 => ⟨S4x1x256, .f32⟩
  | 87 => ⟨S4x256, .f32⟩
  | 88 => ⟨S4x256x1, .f32⟩
  | 89 => ⟨S4x1x16, .f32⟩
  | 90 => ⟨S4x16, .f32⟩
  | 91 => ⟨S4x1x16, .f32⟩
  | 92 => ⟨S4x256x16, .f32⟩
  | 93 => ⟨S4x256x16, .f32⟩
  | 94 => ⟨S4x256x16, .f32⟩
  | 95 => ⟨S4x256x16, .f32⟩
  | 96 => ⟨S4x1x16, .f32⟩
  | 97 => ⟨S4x16, .f32⟩
  | 98 => ⟨S4x1x16, .f32⟩
  | 99 => ⟨S4x256x16, .f32⟩
  | 100 => ⟨S4x256x16, .f32⟩
  | 101 => ⟨S_, .f32⟩
  | 102 => ⟨S4x256, .f32⟩
  | 103 => ⟨S_, .i32⟩
  | 104 => ⟨S1, .i32⟩
  | 105 => ⟨S4x512x256, .f32⟩
  | 106 => ⟨S4x256x16, .f32⟩
  | 107 => ⟨S4x256x16, .f32⟩
  | 108 => ⟨S4x1x256, .f32⟩
  | 109 => ⟨S4x256, .f32⟩
  | 110 => ⟨S4x256x1, .f32⟩
  | 111 => ⟨S4x1x16, .f32⟩
  | 112 => ⟨S4x16, .f32⟩
  | 113 => ⟨S4x1x16, .f32⟩
  | 114 => ⟨S4x256x16, .f32⟩
  | 115 => ⟨S4x256x16, .f32⟩
  | 116 => ⟨S4x256x16, .f32⟩
  | 117 => ⟨S4x256x16, .f32⟩
  | 118 => ⟨S4x1x16, .f32⟩
  | 119 => ⟨S4x16, .f32⟩
  | 120 => ⟨S4x1x16, .f32⟩
  | 121 => ⟨S4x256x16, .f32⟩
  | 122 => ⟨S4x256x16, .f32⟩
  | 123 => ⟨S_, .f32⟩
  | 124 => ⟨S4x256, .f32⟩
  | 125 => ⟨S_, .i32⟩
  | 126 => ⟨S1, .i32⟩
  | 127 => ⟨S4x512x256, .f32⟩
  | _ => ⟨S4x512x256, .f32⟩

abbrev hbmTy0_14 (i : Nat) : BufTy := match i % 128 with
  | 0 => ⟨S4x256x16, .f32⟩
  | 1 => ⟨S4x256x16, .f32⟩
  | 2 => ⟨S4x1x256, .f32⟩
  | 3 => ⟨S4x256, .f32⟩
  | 4 => ⟨S4x256x1, .f32⟩
  | 5 => ⟨S4x1x16, .f32⟩
  | 6 => ⟨S4x16, .f32⟩
  | 7 => ⟨S4x1x16, .f32⟩
  | 8 => ⟨S4x256x16, .f32⟩
  | 9 => ⟨S4x256x16, .f32⟩
  | 10 => ⟨S4x256x16, .f32⟩
  | 11 => ⟨S4x256x16, .f32⟩
  | 12 => ⟨S4x1x16, .f32⟩
  | 13 => ⟨S4x16, .f32⟩
  | 14 => ⟨S4x1x16, .f32⟩
  | 15 => ⟨S4x256x16, .f32⟩
  | 16 => ⟨S4x256x16, .f32⟩
  | 17 => ⟨S_, .f32⟩
  | 18 => ⟨S4x256, .f32⟩
  | 19 => ⟨S_, .i32⟩
  | 20 => ⟨S1, .i32⟩
  | 21 => ⟨S4x512x256, .f32⟩
  | 22 => ⟨S4x256x16, .f32⟩
  | 23 => ⟨S4x256x16, .f32⟩
  | 24 => ⟨S4x1x256, .f32⟩
  | 25 => ⟨S4x256, .f32⟩
  | 26 => ⟨S4x256x1, .f32⟩
  | 27 => ⟨S4x1x16, .f32⟩
  | 28 => ⟨S4x16, .f32⟩
  | 29 => ⟨S4x1x16, .f32⟩
  | 30 => ⟨S4x256x16, .f32⟩
  | 31 => ⟨S4x256x16, .f32⟩
  | 32 => ⟨S4x256x16, .f32⟩
  | 33 => ⟨S4x256x16, .f32⟩
  | 34 => ⟨S4x1x16, .f32⟩
  | 35 => ⟨S4x16, .f32⟩
  | 36 => ⟨S4x1x16, .f32⟩
  | 37 => ⟨S4x256x16, .f32⟩
  | 38 => ⟨S4x256x16, .f32⟩
  | 39 => ⟨S_, .f32⟩
  | 40 => ⟨S4x256, .f32⟩
  | 41 => ⟨S_, .i32⟩
  | 42 => ⟨S1, .i32⟩
  | 43 => ⟨S4x512x256, .f32⟩
  | 44 => ⟨S4x256x16, .f32⟩
  | 45 => ⟨S4x256x16, .f32⟩
  | 46 => ⟨S4x1x256, .f32⟩
  | 47 => ⟨S4x256, .f32⟩
  | 48 => ⟨S4x256x1, .f32⟩
  | 49 => ⟨S4x1x16, .f32⟩
  | 50 => ⟨S4x16, .f32⟩
  | 51 => ⟨S4x1x16, .f32⟩
  | 52 => ⟨S4x256x16, .f32⟩
  | 53 => ⟨S4x256x16, .f32⟩
  | 54 => ⟨S4x256x16, .f32⟩
  | 55 => ⟨S4x256x16, .f32⟩
  | 56 => ⟨S4x1x16, .f32⟩
  | 57 => ⟨S4x16, .f32⟩
  | 58 => ⟨S4x1x16, .f32⟩
  | 59 => ⟨S4x256x16, .f32⟩
  | 60 => ⟨S4x256x16, .f32⟩
  | 61 => ⟨S_, .f32⟩
  | 62 => ⟨S4x256, .f32⟩
  | 63 => ⟨S_, .i32⟩
  | 64 => ⟨S1, .i32⟩
  | 65 => ⟨S4x512x256, .f32⟩
  | 66 => ⟨S4x256x16, .f32⟩
  | 67 => ⟨S4x256x16, .f32⟩
  | 68 => ⟨S4x1x256, .f32⟩
  | 69 => ⟨S4x256, .f32⟩
  | 70 => ⟨S4x256x1, .f32⟩
  | 71 => ⟨S4x1x16, .f32⟩
  | 72 => ⟨S4x16, .f32⟩
  | 73 => ⟨S4x1x16, .f32⟩
  | 74 => ⟨S4x256x16, .f32⟩
  | 75 => ⟨S4x256x16, .f32⟩
  | 76 => ⟨S4x256x16, .f32⟩
  | 77 => ⟨S4x256x16, .f32⟩
  | 78 => ⟨S4x1x16, .f32⟩
  | 79 => ⟨S4x16, .f32⟩
  | 80 => ⟨S4x1x16, .f32⟩
  | 81 => ⟨S4x256x16, .f32⟩
  | 82 => ⟨S4x256x16, .f32⟩
  | 83 => ⟨S_, .f32⟩
  | 84 => ⟨S4x256, .f32⟩
  | 85 => ⟨S_, .i32⟩
  | 86 => ⟨S1, .i32⟩
  | 87 => ⟨S4x512x256, .f32⟩
  | 88 => ⟨S4x256x16, .f32⟩
  | 89 => ⟨S4x256x16, .f32⟩
  | 90 => ⟨S4x1x256, .f32⟩
  | 91 => ⟨S4x256, .f32⟩
  | 92 => ⟨S4x256x1, .f32⟩
  | 93 => ⟨S4x1x16, .f32⟩
  | 94 => ⟨S4x16, .f32⟩
  | 95 => ⟨S4x1x16, .f32⟩
  | 96 => ⟨S4x256x16, .f32⟩
  | 97 => ⟨S4x256x16, .f32⟩
  | 98 => ⟨S4x256x16, .f32⟩
  | 99 => ⟨S4x256x16, .f32⟩
  | 100 => ⟨S4x1x16, .f32⟩
  | 101 => ⟨S4x16, .f32⟩
  | 102 => ⟨S4x1x16, .f32⟩
  | 103 => ⟨S4x256x16, .f32⟩
  | 104 => ⟨S4x256x16, .f32⟩
  | 105 => ⟨S_, .f32⟩
  | 106 => ⟨S4x256, .f32⟩
  | 107 => ⟨S_, .i32⟩
  | 108 => ⟨S1, .i32⟩
  | 109 => ⟨S4x512x256, .f32⟩
  | 110 => ⟨S4x256x16, .f32⟩
  | 111 => ⟨S4x256x16, .f32⟩
  | 112 => ⟨S4x1x256, .f32⟩
  | 113 => ⟨S4x256, .f32⟩
  | 114 => ⟨S4x256x1, .f32⟩
  | 115 => ⟨S4x1x16, .f32⟩
  | 116 => ⟨S4x16, .f32⟩
  | 117 => ⟨S4x1x16, .f32⟩
  | 118 => ⟨S4x256x16, .f32⟩
  | 119 => ⟨S4x256x16, .f32⟩
  | 120 => ⟨S4x256x16, .f32⟩
  | 121 => ⟨S4x256x16, .f32⟩
  | 122 => ⟨S4x1x16, .f32⟩
  | 123 => ⟨S4x16, .f32⟩
  | 124 => ⟨S4x1x16, .f32⟩
  | 125 => ⟨S4x256x16, .f32⟩
  | 126 => ⟨S4x256x16, .f32⟩
  | 127 => ⟨S_, .f32⟩
  | _ => ⟨S4x512x256, .f32⟩

abbrev hbmTy0_15 (i : Nat) : BufTy := match i % 128 with
  | 0 => ⟨S4x256, .f32⟩
  | 1 => ⟨S_, .i32⟩
  | 2 => ⟨S1, .i32⟩
  | 3 => ⟨S4x512x256, .f32⟩
  | 4 => ⟨S4x256x16, .f32⟩
  | 5 => ⟨S4x256x16, .f32⟩
  | 6 => ⟨S4x1x256, .f32⟩
  | 7 => ⟨S4x256, .f32⟩
  | 8 => ⟨S4x256x1, .f32⟩
  | 9 => ⟨S4x1x16, .f32⟩
  | 10 => ⟨S4x16, .f32⟩
  | 11 => ⟨S4x1x16, .f32⟩
  | 12 => ⟨S4x256x16, .f32⟩
  | 13 => ⟨S4x256x16, .f32⟩
  | 14 => ⟨S4x256x16, .f32⟩
  | 15 => ⟨S4x256x16, .f32⟩
  | 16 => ⟨S4x1x16, .f32⟩
  | 17 => ⟨S4x16, .f32⟩
  | 18 => ⟨S4x1x16, .f32⟩
  | 19 => ⟨S4x256x16, .f32⟩
  | 20 => ⟨S4x256x16, .f32⟩
  | 21 => ⟨S_, .f32⟩
  | 22 => ⟨S4x256, .f32⟩
  | 23 => ⟨S_, .i32⟩
  | 24 => ⟨S1, .i32⟩
  | 25 => ⟨S4x512x256, .f32⟩
  | 26 => ⟨S4x256x16, .f32⟩
  | 27 => ⟨S4x256x16, .f32⟩
  | 28 => ⟨S4x1x256, .f32⟩
  | 29 => ⟨S4x256, .f32⟩
  | 30 => ⟨S4x256x1, .f32⟩
  | 31 => ⟨S4x1x16, .f32⟩
  | 32 => ⟨S4x16, .f32⟩
  | 33 => ⟨S4x1x16, .f32⟩
  | 34 => ⟨S4x256x16, .f32⟩
  | 35 => ⟨S4x256x16, .f32⟩
  | 36 => ⟨S4x256x16, .f32⟩
  | 37 => ⟨S4x256x16, .f32⟩
  | 38 => ⟨S4x1x16, .f32⟩
  | 39 => ⟨S4x16, .f32⟩
  | 40 => ⟨S4x1x16, .f32⟩
  | 41 => ⟨S4x256x16, .f32⟩
  | 42 => ⟨S4x256x16, .f32⟩
  | 43 => ⟨S_, .f32⟩
  | 44 => ⟨S4x256, .f32⟩
  | 45 => ⟨S_, .i32⟩
  | 46 => ⟨S1, .i32⟩
  | 47 => ⟨S4x512x256, .f32⟩
  | 48 => ⟨S4x256x16, .f32⟩
  | 49 => ⟨S4x256x16, .f32⟩
  | 50 => ⟨S4x1x256, .f32⟩
  | 51 => ⟨S4x256, .f32⟩
  | 52 => ⟨S4x256x1, .f32⟩
  | 53 => ⟨S4x1x16, .f32⟩
  | 54 => ⟨S4x16, .f32⟩
  | 55 => ⟨S4x1x16, .f32⟩
  | 56 => ⟨S4x256x16, .f32⟩
  | 57 => ⟨S4x256x16, .f32⟩
  | 58 => ⟨S4x256x16, .f32⟩
  | 59 => ⟨S4x256x16, .f32⟩
  | 60 => ⟨S4x1x16, .f32⟩
  | 61 => ⟨S4x16, .f32⟩
  | 62 => ⟨S4x1x16, .f32⟩
  | 63 => ⟨S4x256x16, .f32⟩
  | 64 => ⟨S4x256x16, .f32⟩
  | 65 => ⟨S_, .f32⟩
  | 66 => ⟨S4x256, .f32⟩
  | 67 => ⟨S_, .i32⟩
  | 68 => ⟨S1, .i32⟩
  | 69 => ⟨S4x512x256, .f32⟩
  | 70 => ⟨S4x256x16, .f32⟩
  | 71 => ⟨S4x256x16, .f32⟩
  | 72 => ⟨S4x1x256, .f32⟩
  | 73 => ⟨S4x256, .f32⟩
  | 74 => ⟨S4x256x1, .f32⟩
  | 75 => ⟨S4x1x16, .f32⟩
  | 76 => ⟨S4x16, .f32⟩
  | 77 => ⟨S4x1x16, .f32⟩
  | 78 => ⟨S4x256x16, .f32⟩
  | 79 => ⟨S4x256x16, .f32⟩
  | 80 => ⟨S4x256x16, .f32⟩
  | 81 => ⟨S4x256x16, .f32⟩
  | 82 => ⟨S4x1x16, .f32⟩
  | 83 => ⟨S4x16, .f32⟩
  | 84 => ⟨S4x1x16, .f32⟩
  | 85 => ⟨S4x256x16, .f32⟩
  | 86 => ⟨S4x256x16, .f32⟩
  | 87 => ⟨S_, .f32⟩
  | 88 => ⟨S4x256, .f32⟩
  | 89 => ⟨S_, .i32⟩
  | 90 => ⟨S1, .i32⟩
  | 91 => ⟨S4x512x256, .f32⟩
  | 92 => ⟨S4x256x16, .f32⟩
  | 93 => ⟨S4x256x16, .f32⟩
  | 94 => ⟨S4x1x256, .f32⟩
  | 95 => ⟨S4x256, .f32⟩
  | 96 => ⟨S4x256x1, .f32⟩
  | 97 => ⟨S4x1x16, .f32⟩
  | 98 => ⟨S4x16, .f32⟩
  | 99 => ⟨S4x1x16, .f32⟩
  | 100 => ⟨S4x256x16, .f32⟩
  | 101 => ⟨S4x256x16, .f32⟩
  | 102 => ⟨S4x256x16, .f32⟩
  | 103 => ⟨S4x256x16, .f32⟩
  | 104 => ⟨S4x1x16, .f32⟩
  | 105 => ⟨S4x16, .f32⟩
  | 106 => ⟨S4x1x16, .f32⟩
  | 107 => ⟨S4x256x16, .f32⟩
  | 108 => ⟨S4x256x16, .f32⟩
  | 109 => ⟨S_, .f32⟩
  | 110 => ⟨S4x256, .f32⟩
  | 111 => ⟨S_, .i32⟩
  | 112 => ⟨S1, .i32⟩
  | 113 => ⟨S4x512x256, .f32⟩
  | 114 => ⟨S4x256x16, .f32⟩
  | 115 => ⟨S4x256x16, .f32⟩
  | 116 => ⟨S4x1x256, .f32⟩
  | 117 => ⟨S4x256, .f32⟩
  | 118 => ⟨S4x256x1, .f32⟩
  | 119 => ⟨S4x1x16, .f32⟩
  | 120 => ⟨S4x16, .f32⟩
  | 121 => ⟨S4x1x16, .f32⟩
  | 122 => ⟨S4x256x16, .f32⟩
  | 123 => ⟨S4x256x16, .f32⟩
  | 124 => ⟨S4x256x16, .f32⟩
  | 125 => ⟨S4x256x16, .f32⟩
  | 126 => ⟨S4x1x16, .f32⟩
  | 127 => ⟨S4x16, .f32⟩
  | _ => ⟨S4x512x256, .f32⟩

abbrev hbmTy0_16 (i : Nat) : BufTy := match i % 128 with
  | 0 => ⟨S4x1x16, .f32⟩
  | 1 => ⟨S4x256x16, .f32⟩
  | 2 => ⟨S4x256x16, .f32⟩
  | 3 => ⟨S_, .f32⟩
  | 4 => ⟨S4x256, .f32⟩
  | 5 => ⟨S_, .i32⟩
  | 6 => ⟨S1, .i32⟩
  | 7 => ⟨S4x512x256, .f32⟩
  | 8 => ⟨S4x256x16, .f32⟩
  | 9 => ⟨S4x256x16, .f32⟩
  | 10 => ⟨S4x1x256, .f32⟩
  | 11 => ⟨S4x256, .f32⟩
  | 12 => ⟨S4x256x1, .f32⟩
  | 13 => ⟨S4x1x16, .f32⟩
  | 14 => ⟨S4x16, .f32⟩
  | 15 => ⟨S4x1x16, .f32⟩
  | 16 => ⟨S4x256x16, .f32⟩
  | 17 => ⟨S4x256x16, .f32⟩
  | 18 => ⟨S4x256x16, .f32⟩
  | 19 => ⟨S4x256x16, .f32⟩
  | 20 => ⟨S4x1x16, .f32⟩
  | 21 => ⟨S4x16, .f32⟩
  | 22 => ⟨S4x1x16, .f32⟩
  | 23 => ⟨S4x256x16, .f32⟩
  | 24 => ⟨S4x256x16, .f32⟩
  | 25 => ⟨S_, .f32⟩
  | 26 => ⟨S4x256, .f32⟩
  | 27 => ⟨S_, .i32⟩
  | 28 => ⟨S1, .i32⟩
  | 29 => ⟨S4x512x256, .f32⟩
  | 30 => ⟨S4x256x16, .f32⟩
  | 31 => ⟨S4x256x16, .f32⟩
  | 32 => ⟨S4x1x256, .f32⟩
  | 33 => ⟨S4x256, .f32⟩
  | 34 => ⟨S4x256x1, .f32⟩
  | 35 => ⟨S4x1x16, .f32⟩
  | 36 => ⟨S4x16, .f32⟩
  | 37 => ⟨S4x1x16, .f32⟩
  | 38 => ⟨S4x256x16, .f32⟩
  | 39 => ⟨S4x256x16, .f32⟩
  | 40 => ⟨S4x256x16, .f32⟩
  | 41 => ⟨S4x256x16, .f32⟩
  | 42 => ⟨S4x1x16, .f32⟩
  | 43 => ⟨S4x16, .f32⟩
  | 44 => ⟨S4x1x16, .f32⟩
  | 45 => ⟨S4x256x16, .f32⟩
  | 46 => ⟨S4x256x16, .f32⟩
  | 47 => ⟨S_, .f32⟩
  | 48 => ⟨S4x256, .f32⟩
  | 49 => ⟨S_, .i32⟩
  | 50 => ⟨S1, .i32⟩
  | 51 => ⟨S4x512x256, .f32⟩
  | 52 => ⟨S4x256x16, .f32⟩
  | 53 => ⟨S4x256x16, .f32⟩
  | 54 => ⟨S4x1x256, .f32⟩
  | 55 => ⟨S4x256, .f32⟩
  | 56 => ⟨S4x256x1, .f32⟩
  | 57 => ⟨S4x1x16, .f32⟩
  | 58 => ⟨S4x16, .f32⟩
  | 59 => ⟨S4x1x16, .f32⟩
  | 60 => ⟨S4x256x16, .f32⟩
  | 61 => ⟨S4x256x16, .f32⟩
  | 62 => ⟨S4x256x16, .f32⟩
  | 63 => ⟨S4x256x16, .f32⟩
  | 64 => ⟨S4x1x16, .f32⟩
  | 65 => ⟨S4x16, .f32⟩
  | 66 => ⟨S4x1x16, .f32⟩
  | 67 => ⟨S4x256x16, .f32⟩
  | 68 => ⟨S4x256x16, .f32⟩
  | 69 => ⟨S_, .f32⟩
  | 70 => ⟨S4x256, .f32⟩
  | 71 => ⟨S_, .i32⟩
  | 72 => ⟨S1, .i32⟩
  | 73 => ⟨S4x512x256, .f32⟩
  | 74 => ⟨S4x256x16, .f32⟩
  | 75 => ⟨S4x256x16, .f32⟩
  | 76 => ⟨S4x1x256, .f32⟩
  | 77 => ⟨S4x256, .f32⟩
  | 78 => ⟨S4x256x1, .f32⟩
  | 79 => ⟨S4x1x16, .f32⟩
  | 80 => ⟨S4x16, .f32⟩
  | 81 => ⟨S4x1x16, .f32⟩
  | 82 => ⟨S4x256x16, .f32⟩
  | 83 => ⟨S4x256x16, .f32⟩
  | 84 => ⟨S4x256x16, .f32⟩
  | 85 => ⟨S4x256x16, .f32⟩
  | 86 => ⟨S4x1x16, .f32⟩
  | 87 => ⟨S4x16, .f32⟩
  | 88 => ⟨S4x1x16, .f32⟩
  | 89 => ⟨S4x256x16, .f32⟩
  | 90 => ⟨S4x256x16, .f32⟩
  | 91 => ⟨S_, .f32⟩
  | 92 => ⟨S4x256, .f32⟩
  | 93 => ⟨S_, .i32⟩
  | 94 => ⟨S1, .i32⟩
  | 95 => ⟨S4x512x256, .f32⟩
  | 96 => ⟨S4x256x16, .f32⟩
  | 97 => ⟨S4x256x16, .f32⟩
  | 98 => ⟨S4x1x256, .f32⟩
  | 99 => ⟨S4x256, .f32⟩
  | 100 => ⟨S4x256x1, .f32⟩
  | 101 => ⟨S4x1x16, .f32⟩
  | 102 => ⟨S4x16, .f32⟩
  | 103 => ⟨S4x1x16, .f32⟩
  | 104 => ⟨S4x256x16, .f32⟩
  | 105 => ⟨S4x256x16, .f32⟩
  | 106 => ⟨S4x256x16, .f32⟩
  | 107 => ⟨S4x256x16, .f32⟩
  | 108 => ⟨S4x1x16, .f32⟩
  | 109 => ⟨S4x16, .f32⟩
  | 110 => ⟨S4x1x16, .f32⟩
  | 111 => ⟨S4x256x16, .f32⟩
  | 112 => ⟨S4x256x16, .f32⟩
  | 113 => ⟨S_, .f32⟩
  | 114 => ⟨S4x256, .f32⟩
  | 115 => ⟨S_, .i32⟩
  | 116 => ⟨S1, .i32⟩
  | 117 => ⟨S4x512x256, .f32⟩
  | 118 => ⟨S4x256x16, .f32⟩
  | 119 => ⟨S4x256x16, .f32⟩
  | 120 => ⟨S4x1x256, .f32⟩
  | 121 => ⟨S4x256, .f32⟩
  | 122 => ⟨S4x256x1, .f32⟩
  | 123 => ⟨S4x1x16, .f32⟩
  | 124 => ⟨S4x16, .f32⟩
  | 125 => ⟨S4x1x16, .f32⟩
  | 126 => ⟨S4x256x16, .f32⟩
  | 127 => ⟨S4x256x16, .f32⟩
  | _ => ⟨S4x512x256, .f32⟩

abbrev hbmTy0_17 (i : Nat) : BufTy := match i % 128 with
  | 0 => ⟨S4x256x16, .f32⟩
  | 1 => ⟨S4x256x16, .f32⟩
  | 2 => ⟨S4x1x16, .f32⟩
  | 3 => ⟨S4x16, .f32⟩
  | 4 => ⟨S4x1x16, .f32⟩
  | 5 => ⟨S4x256x16, .f32⟩
  | 6 => ⟨S4x256x16, .f32⟩
  | 7 => ⟨S_, .f32⟩
  | 8 => ⟨S4x256, .f32⟩
  | 9 => ⟨S_, .i32⟩
  | 10 => ⟨S1, .i32⟩
  | 11 => ⟨S4x512x256, .f32⟩
  | 12 => ⟨S4x256x16, .f32⟩
  | 13 => ⟨S4x256x16, .f32⟩
  | 14 => ⟨S4x1x256, .f32⟩
  | 15 => ⟨S4x256, .f32⟩
  | 16 => ⟨S4x256x1, .f32⟩
  | 17 => ⟨S4x1x16, .f32⟩
  | 18 => ⟨S4x16, .f32⟩
  | 19 => ⟨S4x1x16, .f32⟩
  | 20 => ⟨S4x256x16, .f32⟩
  | 21 => ⟨S4x256x16, .f32⟩
  | 22 => ⟨S4x256x16, .f32⟩
  | 23 => ⟨S4x256x16, .f32⟩
  | 24 => ⟨S4x1x16, .f32⟩
  | 25 => ⟨S4x16, .f32⟩
  | 26 => ⟨S4x1x16, .f32⟩
  | 27 => ⟨S4x256x16, .f32⟩
  | 28 => ⟨S4x256x16, .f32⟩
  | 29 => ⟨S_, .f32⟩
  | 30 => ⟨S4x256, .f32⟩
  | 31 => ⟨S_, .i32⟩
  | 32 => ⟨S1, .i32⟩
  | 33 => ⟨S4x512x256, .f32⟩
  | 34 => ⟨S4x256x16, .f32⟩
  | 35 => ⟨S4x256x16, .f32⟩
  | 36 => ⟨S4x1x256, .f32⟩
  | 37 => ⟨S4x256, .f32⟩
  | 38 => ⟨S4x256x1, .f32⟩
  | 39 => ⟨S4x1x16, .f32⟩
  | 40 => ⟨S4x16, .f32⟩
  | 41 => ⟨S4x1x16, .f32⟩
  | 42 => ⟨S4x256x16, .f32⟩
  | 43 => ⟨S4x256x16, .f32⟩
  | 44 => ⟨S4x256x16, .f32⟩
  | 45 => ⟨S4x256x16, .f32⟩
  | 46 => ⟨S4x1x16, .f32⟩
  | 47 => ⟨S4x16, .f32⟩
  | 48 => ⟨S4x1x16, .f32⟩
  | 49 => ⟨S4x256x16, .f32⟩
  | 50 => ⟨S4x256x16, .f32⟩
  | 51 => ⟨S_, .f32⟩
  | 52 => ⟨S4x256, .f32⟩
  | 53 => ⟨S_, .i32⟩
  | 54 => ⟨S1, .i32⟩
  | 55 => ⟨S4x512x256, .f32⟩
  | 56 => ⟨S4x256x16, .f32⟩
  | 57 => ⟨S4x256x16, .f32⟩
  | 58 => ⟨S4x1x256, .f32⟩
  | 59 => ⟨S4x256, .f32⟩
  | 60 => ⟨S4x256x1, .f32⟩
  | 61 => ⟨S4x1x16, .f32⟩
  | 62 => ⟨S4x16, .f32⟩
  | 63 => ⟨S4x1x16, .f32⟩
  | 64 => ⟨S4x256x16, .f32⟩
  | 65 => ⟨S4x256x16, .f32⟩
  | 66 => ⟨S4x256x16, .f32⟩
  | 67 => ⟨S4x256x16, .f32⟩
  | 68 => ⟨S4x1x16, .f32⟩
  | 69 => ⟨S4x16, .f32⟩
  | 70 => ⟨S4x1x16, .f32⟩
  | 71 => ⟨S4x256x16, .f32⟩
  | 72 => ⟨S4x256x16, .f32⟩
  | 73 => ⟨S_, .f32⟩
  | 74 => ⟨S4x256, .f32⟩
  | 75 => ⟨S_, .i32⟩
  | 76 => ⟨S1, .i32⟩
  | 77 => ⟨S4x512x256, .f32⟩
  | 78 => ⟨S4x256x16, .f32⟩
  | 79 => ⟨S4x256x16, .f32⟩
  | 80 => ⟨S4x1x256, .f32⟩
  | 81 => ⟨S4x256, .f32⟩
  | 82 => ⟨S4x256x1, .f32⟩
  | 83 => ⟨S4x1x16, .f32⟩
  | 84 => ⟨S4x16, .f32⟩
  | 85 => ⟨S4x1x16, .f32⟩
  | 86 => ⟨S4x256x16, .f32⟩
  | 87 => ⟨S4x256x16, .f32⟩
  | 88 => ⟨S4x256x16, .f32⟩
  | 89 => ⟨S4x256x16, .f32⟩
  | 90 => ⟨S4x1x16, .f32⟩
  | 91 => ⟨S4x16, .f32⟩
  | 92 => ⟨S4x1x16, .f32⟩
  | 93 => ⟨S4x256x16, .f32⟩
  | 94 => ⟨S4x256x16, .f32⟩
  | 95 => ⟨S_, .f32⟩
  | 96 => ⟨S4x256, .f32⟩
  | 97 => ⟨S_, .i32⟩
  | 98 => ⟨S1, .i32⟩
  | 99 => ⟨S4x512x256, .f32⟩
  | 100 => ⟨S4x256x16, .f32⟩
  | 101 => ⟨S4x256x16, .f32⟩
  | 102 => ⟨S4x1x256, .f32⟩
  | 103 => ⟨S4x256, .f32⟩
  | 104 => ⟨S4x256x1, .f32⟩
  | 105 => ⟨S4x1x16, .f32⟩
  | 106 => ⟨S4x16, .f32⟩
  | 107 => ⟨S4x1x16, .f32⟩
  | 108 => ⟨S4x256x16, .f32⟩
  | 109 => ⟨S4x256x16, .f32⟩
  | 110 => ⟨S4x256x16, .f32⟩
  | 111 => ⟨S4x256x16, .f32⟩
  | 112 => ⟨S4x1x16, .f32⟩
  | 113 => ⟨S4x16, .f32⟩
  | 114 => ⟨S4x1x16, .f32⟩
  | 115 => ⟨S4x256x16, .f32⟩
  | 116 => ⟨S4x256x16, .f32⟩
  | 117 => ⟨S_, .f32⟩
  | 118 => ⟨S4x256, .f32⟩
  | 119 => ⟨S_, .i32⟩
  | 120 => ⟨S1, .i32⟩
  | 121 => ⟨S4x512x256, .f32⟩
  | 122 => ⟨S4x256x16, .f32⟩
  | 123 => ⟨S4x256x16, .f32⟩
  | 124 => ⟨S4x1x256, .f32⟩
  | 125 => ⟨S4x256, .f32⟩
  | 126 => ⟨S4x256x1, .f32⟩
  | 127 => ⟨S4x1x16, .f32⟩
  | _ => ⟨S4x512x256, .f32⟩

abbrev hbmTy0_18 (i : Nat) : BufTy := match i % 128 with
  | 0 => ⟨S4x16, .f32⟩
  | 1 => ⟨S4x1x16, .f32⟩
  | 2 => ⟨S4x256x16, .f32⟩
  | 3 => ⟨S4x256x16, .f32⟩
  | 4 => ⟨S4x256x16, .f32⟩
  | 5 => ⟨S4x256x16, .f32⟩
  | 6 => ⟨S4x1x16, .f32⟩
  | 7 => ⟨S4x16, .f32⟩
  | 8 => ⟨S4x1x16, .f32⟩
  | 9 => ⟨S4x256x16, .f32⟩
  | 10 => ⟨S4x256x16, .f32⟩
  | 11 => ⟨S_, .f32⟩
  | 12 => ⟨S4x256, .f32⟩
  | 13 => ⟨S_, .i32⟩
  | 14 => ⟨S1, .i32⟩
  | 15 => ⟨S4x512x256, .f32⟩
  | 16 => ⟨S4x256x16, .f32⟩
  | 17 => ⟨S4x256x16, .f32⟩
  | 18 => ⟨S4x1x256, .f32⟩
  | 19 => ⟨S4x256, .f32⟩
  | 20 => ⟨S4x256x1, .f32⟩
  | 21 => ⟨S4x1x16, .f32⟩
  | 22 => ⟨S4x16, .f32⟩
  | 23 => ⟨S4x1x16, .f32⟩
  | 24 => ⟨S4x256x16, .f32⟩
  | 25 => ⟨S4x256x16, .f32⟩
  | 26 => ⟨S4x256x16, .f32⟩
  | 27 => ⟨S4x256x16, .f32⟩
  | 28 => ⟨S4x1x16, .f32⟩
  | 29 => ⟨S4x16, .f32⟩
  | 30 => ⟨S4x1x16, .f32⟩
  | 31 => ⟨S4x256x16, .f32⟩
  | 32 => ⟨S4x256x16, .f32⟩
  | 33 => ⟨S_, .f32⟩
  | 34 => ⟨S4x256, .f32⟩
  | 35 => ⟨S_, .i32⟩
  | 36 => ⟨S1, .i32⟩
  | 37 => ⟨S4x512x256, .f32⟩
  | 38 => ⟨S4x256x16, .f32⟩
  | 39 => ⟨S4x256x16, .f32⟩
  | 40 => ⟨S4x1x256, .f32⟩
  | 41 => ⟨S4x256, .f32⟩
  | 42 => ⟨S4x256x1, .f32⟩
  | 43 => ⟨S4x1x16, .f32⟩
  | 44 => ⟨S4x16, .f32⟩
  | 45 => ⟨S4x1x16, .f32⟩
  | 46 => ⟨S4x256x16, .f32⟩
  | 47 => ⟨S4x256x16, .f32⟩
  | 48 => ⟨S4x256x16, .f32⟩
  | 49 => ⟨S4x256x16, .f32⟩
  | 50 => ⟨S4x1x16, .f32⟩
  | 51 => ⟨S4x16, .f32⟩
  | 52 => ⟨S4x1x16, .f32⟩
  | 53 => ⟨S4x256x16, .f32⟩
  | 54 => ⟨S4x256x16, .f32⟩
  | 55 => ⟨S_, .f32⟩
  | 56 => ⟨S4x256, .f32⟩
  | 57 => ⟨S_, .i32⟩
  | 58 => ⟨S1, .i32⟩
  | 59 => ⟨S4x512x256, .f32⟩
  | 60 => ⟨S4x256x16, .f32⟩
  | 61 => ⟨S4x256x16, .f32⟩
  | 62 => ⟨S4x1x256, .f32⟩
  | 63 => ⟨S4x256, .f32⟩
  | 64 => ⟨S4x256x1, .f32⟩
  | 65 => ⟨S4x1x16, .f32⟩
  | 66 => ⟨S4x16, .f32⟩
  | 67 => ⟨S4x1x16, .f32⟩
  | 68 => ⟨S4x256x16, .f32⟩
  | 69 => ⟨S4x256x16, .f32⟩
  | 70 => ⟨S4x256x16, .f32⟩
  | 71 => ⟨S4x256x16, .f32⟩
  | 72 => ⟨S4x1x16, .f32⟩
  | 73 => ⟨S4x16, .f32⟩
  | 74 => ⟨S4x1x16, .f32⟩
  | 75 => ⟨S4x256x16, .f32⟩
  | 76 => ⟨S4x256x16, .f32⟩
  | 77 => ⟨S_, .f32⟩
  | 78 => ⟨S4x256, .f32⟩
  | 79 => ⟨S_, .i32⟩
  | 80 => ⟨S1, .i32⟩
  | 81 => ⟨S4x512x256, .f32⟩
  | 82 => ⟨S4x256x16, .f32⟩
  | 83 => ⟨S4x256x16, .f32⟩
  | 84 => ⟨S4x1x256, .f32⟩
  | 85 => ⟨S4x256, .f32⟩
  | 86 => ⟨S4x256x1, .f32⟩
  | 87 => ⟨S4x1x16, .f32⟩
  | 88 => ⟨S4x16, .f32⟩
  | 89 => ⟨S4x1x16, .f32⟩
  | 90 => ⟨S4x256x16, .f32⟩
  | 91 => ⟨S4x256x16, .f32⟩
  | 92 => ⟨S4x256x16, .f32⟩
  | 93 => ⟨S4x256x16, .f32⟩
  | 94 => ⟨S4x1x16, .f32⟩
  | 95 => ⟨S4x16, .f32⟩
  | 96 => ⟨S4x1x16, .f32⟩
  | 97 => ⟨S4x256x16, .f32⟩
  | 98 => ⟨S4x256x16, .f32⟩
  | 99 => ⟨S_, .f32⟩
  | 100 => ⟨S4x256, .f32⟩
  | 101 => ⟨S_, .i32⟩
  | 102 => ⟨S1, .i32⟩
  | 103 => ⟨S4x512x256, .f32⟩
  | 104 => ⟨S4x256x16, .f32⟩
  | 105 => ⟨S4x256x16, .f32⟩
  | 106 => ⟨S4x1x256, .f32⟩
  | 107 => ⟨S4x256, .f32⟩
  | 108 => ⟨S4x256x1, .f32⟩
  | 109 => ⟨S4x1x16, .f32⟩
  | 110 => ⟨S4x16, .f32⟩
  | 111 => ⟨S4x1x16, .f32⟩
  | 112 => ⟨S4x256x16, .f32⟩
  | 113 => ⟨S4x256x16, .f32⟩
  | 114 => ⟨S4x256x16, .f32⟩
  | 115 => ⟨S4x256x16, .f32⟩
  | 116 => ⟨S4x1x16, .f32⟩
  | 117 => ⟨S4x16, .f32⟩
  | 118 => ⟨S4x1x16, .f32⟩
  | 119 => ⟨S4x256x16, .f32⟩
  | 120 => ⟨S4x256x16, .f32⟩
  | 121 => ⟨S_, .f32⟩
  | 122 => ⟨S4x256, .f32⟩
  | 123 => ⟨S_, .i32⟩
  | 124 => ⟨S1, .i32⟩
  | 125 => ⟨S4x512x256, .f32⟩
  | 126 => ⟨S4x256x16, .f32⟩
  | 127 => ⟨S4x256x16, .f32⟩
  | _ => ⟨S4x512x256, .f32⟩

abbrev hbmTy0_19 (i : Nat) : BufTy := match i % 128 with
  | 0 => ⟨S4x1x256, .f32⟩
  | 1 => ⟨S4x256, .f32⟩
  | 2 => ⟨S4x256x1, .f32⟩
  | 3 => ⟨S4x1x16, .f32⟩
  | 4 => ⟨S4x16, .f32⟩
  | 5 => ⟨S4x1x16, .f32⟩
  | 6 => ⟨S4x256x16, .f32⟩
  | 7 => ⟨S4x256x16, .f32⟩
  | 8 => ⟨S4x256x16, .f32⟩
  | 9 => ⟨S4x256x16, .f32⟩
  | 10 => ⟨S4x1x16, .f32⟩
  | 11 => ⟨S4x16, .f32⟩
  | 12 => ⟨S4x1x16, .f32⟩
  | 13 => ⟨S4x256x16, .f32⟩
  | 14 => ⟨S4x256x16, .f32⟩
  | 15 => ⟨S_, .f32⟩
  | 16 => ⟨S4x256, .f32⟩
  | 17 => ⟨S_, .i32⟩
  | 18 => ⟨S1, .i32⟩
  | 19 => ⟨S4x512x256, .f32⟩
  | 20 => ⟨S4x256x16, .f32⟩
  | 21 => ⟨S4x256x16, .f32⟩
  | 22 => ⟨S4x1x256, .f32⟩
  | 23 => ⟨S4x256, .f32⟩
  | 24 => ⟨S4x256x1, .f32⟩
  | 25 => ⟨S4x1x16, .f32⟩
  | 26 => ⟨S4x16, .f32⟩
  | 27 => ⟨S4x1x16, .f32⟩
  | 28 => ⟨S4x256x16, .f32⟩
  | 29 => ⟨S4x256x16, .f32⟩
  | 30 => ⟨S4x256x16, .f32⟩
  | 31 => ⟨S4x256x16, .f32⟩
  | 32 => ⟨S4x1x16, .f32⟩
  | 33 => ⟨S4x16, .f32⟩
  | 34 => ⟨S4x1x16, .f32⟩
  | 35 => ⟨S4x256x16, .f32⟩
  | 36 => ⟨S4x256x16, .f32⟩
  | 37 => ⟨S_, .f32⟩
  | 38 => ⟨S4x256, .f32⟩
  | 39 => ⟨S_, .i32⟩
  | 40 => ⟨S1, .i32⟩
  | 41 => ⟨S4x512x256, .f32⟩
  | 42 => ⟨S4x256x16, .f32⟩
  | 43 => ⟨S4x256x16, .f32⟩
  | 44 => ⟨S4x1x256, .f32⟩
  | 45 => ⟨S4x256, .f32⟩
  | 46 => ⟨S4x256x1, .f32⟩
  | 47 => ⟨S4x1x16, .f32⟩
  | 48 => ⟨S4x16, .f32⟩
  | 49 => ⟨S4x1x16, .f32⟩
  | 50 => ⟨S4x256x16, .f32⟩
  | 51 => ⟨S4x256x16, .f32⟩
  | 52 => ⟨S4x256x16, .f32⟩
  | 53 => ⟨S4x256x16, .f32⟩
  | 54 => ⟨S4x1x16, .f32⟩
  | 55 => ⟨S4x16, .f32⟩
  | 56 => ⟨S4x1x16, .f32⟩
  | 57 => ⟨S4x256x16, .f32⟩
  | 58 => ⟨S4x256x16, .f32⟩
  | 59 => ⟨S_, .f32⟩
  | 60 => ⟨S4x256, .f32⟩
  | 61 => ⟨S_, .i32⟩
  | 62 => ⟨S1, .i32⟩
  | 63 => ⟨S4x512x256, .f32⟩
  | 64 => ⟨S4x256x16, .f32⟩
  | 65 => ⟨S4x256x16, .f32⟩
  | 66 => ⟨S4x1x256, .f32⟩
  | 67 => ⟨S4x256, .f32⟩
  | 68 => ⟨S4x256x1, .f32⟩
  | 69 => ⟨S4x1x16, .f32⟩
  | 70 => ⟨S4x16, .f32⟩
  | 71 => ⟨S4x1x16, .f32⟩
  | 72 => ⟨S4x256x16, .f32⟩
  | 73 => ⟨S4x256x16, .f32⟩
  | 74 => ⟨S4x256x16, .f32⟩
  | 75 => ⟨S4x256x16, .f32⟩
  | 76 => ⟨S4x1x16, .f32⟩
  | 77 => ⟨S4x16, .f32⟩
  | 78 => ⟨S4x1x16, .f32⟩
  | 79 => ⟨S4x256x16, .f32⟩
  | 80 => ⟨S4x256x16, .f32⟩
  | 81 => ⟨S_, .f32⟩
  | 82 => ⟨S4x256, .f32⟩
  | 83 => ⟨S_, .i32⟩
  | 84 => ⟨S1, .i32⟩
  | 85 => ⟨S4x512x256, .f32⟩
  | 86 => ⟨S4x256x16, .f32⟩
  | 87 => ⟨S4x256x16, .f32⟩
  | 88 => ⟨S4x1x256, .f32⟩
  | 89 => ⟨S4x256, .f32⟩
  | 90 => ⟨S4x256x1, .f32⟩
  | 91 => ⟨S4x1x16, .f32⟩
  | 92 => ⟨S4x16, .f32⟩
  | 93 => ⟨S4x1x16, .f32⟩
  | 94 => ⟨S4x256x16, .f32⟩
  | 95 => ⟨S4x256x16, .f32⟩
  | 96 => ⟨S4x256x16, .f32⟩
  | 97 => ⟨S4x256x16, .f32⟩
  | 98 => ⟨S4x1x16, .f32⟩
  | 99 => ⟨S4x16, .f32⟩
  | 100 => ⟨S4x1x16, .f32⟩
  | 101 => ⟨S4x256x16, .f32⟩
  | 102 => ⟨S4x256x16, .f32⟩
  | 103 => ⟨S_, .f32⟩
  | 104 => ⟨S4x256, .f32⟩
  | 105 => ⟨S_, .i32⟩
  | 106 => ⟨S1, .i32⟩
  | 107 => ⟨S4x512x256, .f32⟩
  | 108 => ⟨S4x256x16, .f32⟩
  | 109 => ⟨S4x256x16, .f32⟩
  | 110 => ⟨S4x1x256, .f32⟩
  | 111 => ⟨S4x256, .f32⟩
  | 112 => ⟨S4x256x1, .f32⟩
  | 113 => ⟨S4x1x16, .f32⟩
  | 114 => ⟨S4x16, .f32⟩
  | 115 => ⟨S4x1x16, .f32⟩
  | 116 => ⟨S4x256x16, .f32⟩
  | 117 => ⟨S4x256x16, .f32⟩
  | 118 => ⟨S4x256x16, .f32⟩
  | 119 => ⟨S4x256x16, .f32⟩
  | 120 => ⟨S4x1x16, .f32⟩
  | 121 => ⟨S4x16, .f32⟩
  | 122 => ⟨S4x1x16, .f32⟩
  | 123 => ⟨S4x256x16, .f32⟩
  | 124 => ⟨S4x256x16, .f32⟩
  | 125 => ⟨S_, .f32⟩
  | 126 => ⟨S4x256, .f32⟩
  | 127 => ⟨S_, .i32⟩
  | _ => ⟨S4x512x256, .f32⟩

abbrev hbmTy0_20 (i : Nat) : BufTy := match i % 128 with
  | 0 => ⟨S1, .i32⟩
  | 1 => ⟨S4x512x256, .f32⟩
  | 2 => ⟨S4x256x16, .f32⟩
  | 3 => ⟨S4x256x16, .f32⟩
  | 4 => ⟨S4x1x256, .f32⟩
  | 5 => ⟨S4x256, .f32⟩
  | 6 => ⟨S4x256x1, .f32⟩
  | 7 => ⟨S4x1x16, .f32⟩
  | 8 => ⟨S4x16, .f32⟩
  | 9 => ⟨S4x1x16, .f32⟩
  | 10 => ⟨S4x256x16, .f32⟩
  | 11 => ⟨S4x256x16, .f32⟩
  | 12 => ⟨S4x256x16, .f32⟩
  | 13 => ⟨S4x256x16, .f32⟩
  | 14 => ⟨S4x1x16, .f32⟩
  | 15 => ⟨S4x16, .f32⟩
  | 16 => ⟨S4x1x16, .f32⟩
  | 17 => ⟨S4x256x16, .f32⟩
  | 18 => ⟨S4x256x16, .f32⟩
  | 19 => ⟨S_, .f32⟩
  | 20 => ⟨S4x256, .f32⟩
  | 21 => ⟨S_, .i32⟩
  | 22 => ⟨S1, .i32⟩
  | 23 => ⟨S4x512x256, .f32⟩
  | 24 => ⟨S4x256x16, .f32⟩
  | 25 => ⟨S4x256x16, .f32⟩
  | 26 => ⟨S4x1x256, .f32⟩
  | 27 => ⟨S4x256, .f32⟩
  | 28 => ⟨S4x256x1, .f32⟩
  | 29 => ⟨S4x1x16, .f32⟩
  | 30 => ⟨S4x16, .f32⟩
  | 31 => ⟨S4x1x16, .f32⟩
  | 32 => ⟨S4x256x16, .f32⟩
  | 33 => ⟨S4x256x16, .f32⟩
  | 34 => ⟨S4x256x16, .f32⟩
  | 35 => ⟨S4x256x16, .f32⟩
  | 36 => ⟨S4x1x16, .f32⟩
  | 37 => ⟨S4x16, .f32⟩
  | 38 => ⟨S4x1x16, .f32⟩
  | 39 => ⟨S4x256x16, .f32⟩
  | 40 => ⟨S4x256x16, .f32⟩
  | 41 => ⟨S_, .f32⟩
  | 42 => ⟨S4x256, .f32⟩
  | 43 => ⟨S_, .i32⟩
  | 44 => ⟨S1, .i32⟩
  | 45 => ⟨S4x512x256, .f32⟩
  | 46 => ⟨S4x256x16, .f32⟩
  | 47 => ⟨S4x256x16, .f32⟩
  | 48 => ⟨S4x1x256, .f32⟩
  | 49 => ⟨S4x256, .f32⟩
  | 50 => ⟨S4x256x1, .f32⟩
  | 51 => ⟨S4x1x16, .f32⟩
  | 52 => ⟨S4x16, .f32⟩
  | 53 => ⟨S4x1x16, .f32⟩
  | 54 => ⟨S4x256x16, .f32⟩
  | 55 => ⟨S4x256x16, .f32⟩
  | 56 => ⟨S4x256x16, .f32⟩
  | 57 => ⟨S4x256x16, .f32⟩
  | 58 => ⟨S4x1x16, .f32⟩
  | 59 => ⟨S4x16, .f32⟩
  | 60 => ⟨S4x1x16, .f32⟩
  | 61 => ⟨S4x256x16, .f32⟩
  | 62 => ⟨S4x256x16, .f32⟩
  | 63 => ⟨S_, .f32⟩
  | 64 => ⟨S4x256, .f32⟩
  | 65 => ⟨S_, .i32⟩
  | 66 => ⟨S1, .i32⟩
  | 67 => ⟨S4x512x256, .f32⟩
  | 68 => ⟨S4x256x16, .f32⟩
  | 69 => ⟨S4x256x16, .f32⟩
  | 70 => ⟨S4x1x256, .f32⟩
  | 71 => ⟨S4x256, .f32⟩
  | 72 => ⟨S4x256x1, .f32⟩
  | 73 => ⟨S4x1x16, .f32⟩
  | 74 => ⟨S4x16, .f32⟩
  | 75 => ⟨S4x1x16, .f32⟩
  | 76 => ⟨S4x256x16, .f32⟩
  | 77 => ⟨S4x256x16, .f32⟩
  | 78 => ⟨S4x256x16, .f32⟩
  | 79 => ⟨S4x256x16, .f32⟩
  | 80 => ⟨S4x1x16, .f32⟩
  | 81 => ⟨S4x16, .f32⟩
  | 82 => ⟨S4x1x16, .f32⟩
  | 83 => ⟨S4x256x16, .f32⟩
  | 84 => ⟨S4x256x16, .f32⟩
  | 85 => ⟨S_, .f32⟩
  | 86 => ⟨S4x256, .f32⟩
  | 87 => ⟨S_, .i32⟩
  | 88 => ⟨S1, .i32⟩
  | 89 => ⟨S4x512x256, .f32⟩
  | 90 => ⟨S4x256x16, .f32⟩
  | 91 => ⟨S4x256x16, .f32⟩
  | 92 => ⟨S4x1x256, .f32⟩
  | 93 => ⟨S4x256, .f32⟩
  | 94 => ⟨S4x256x1, .f32⟩
  | 95 => ⟨S4x1x16, .f32⟩
  | 96 => ⟨S4x16, .f32⟩
  | 97 => ⟨S4x1x16, .f32⟩
  | 98 => ⟨S4x256x16, .f32⟩
  | 99 => ⟨S4x256x16, .f32⟩
  | 100 => ⟨S4x256x16, .f32⟩
  | 101 => ⟨S4x256x16, .f32⟩
  | 102 => ⟨S4x1x16, .f32⟩
  | 103 => ⟨S4x16, .f32⟩
  | 104 => ⟨S4x1x16, .f32⟩
  | 105 => ⟨S4x256x16, .f32⟩
  | 106 => ⟨S4x256x16, .f32⟩
  | 107 => ⟨S_, .f32⟩
  | 108 => ⟨S4x256, .f32⟩
  | 109 => ⟨S_, .i32⟩
  | 110 => ⟨S1, .i32⟩
  | 111 => ⟨S4x512x256, .f32⟩
  | 112 => ⟨S4x256x16, .f32⟩
  | 113 => ⟨S4x256x16, .f32⟩
  | 114 => ⟨S4x1x256, .f32⟩
  | 115 => ⟨S4x256, .f32⟩
  | 116 => ⟨S4x256x1, .f32⟩
  | 117 => ⟨S4x1x16, .f32⟩
  | 118 => ⟨S4x16, .f32⟩
  | 119 => ⟨S4x1x16, .f32⟩
  | 120 => ⟨S4x256x16, .f32⟩
  | 121 => ⟨S4x256x16, .f32⟩
  | 122 => ⟨S4x256x16, .f32⟩
  | 123 => ⟨S4x256x16, .f32⟩
  | 124 => ⟨S4x1x16, .f32⟩
  | 125 => ⟨S4x16, .f32⟩
  | 126 => ⟨S4x1x16, .f32⟩
  | 127 => ⟨S4x256x16, .f32⟩
  | _ => ⟨S4x512x256, .f32⟩

abbrev hbmTy0_21 (i : Nat) : BufTy := match i % 128 with
  | 0 => ⟨S4x256x16, .f32⟩
  | 1 => ⟨S_, .f32⟩
  | 2 => ⟨S4x256, .f32⟩
  | 3 => ⟨S_, .i32⟩
  | 4 => ⟨S1, .i32⟩
  | 5 => ⟨S4x512x256, .f32⟩
  | 6 => ⟨S4x256x16, .f32⟩
  | 7 => ⟨S4x256x16, .f32⟩
  | 8 => ⟨S4x1x256, .f32⟩
  | 9 => ⟨S4x256, .f32⟩
  | 10 => ⟨S4x256x1, .f32⟩
  | 11 => ⟨S4x1x16, .f32⟩
  | 12 => ⟨S4x16, .f32⟩
  | 13 => ⟨S4x1x16, .f32⟩
  | 14 => ⟨S4x256x16, .f32⟩
  | 15 => ⟨S4x256x16, .f32⟩
  | 16 => ⟨S4x256x16, .f32⟩
  | 17 => ⟨S4x256x16, .f32⟩
  | 18 => ⟨S4x1x16, .f32⟩
  | 19 => ⟨S4x16, .f32⟩
  | 20 => ⟨S4x1x16, .f32⟩
  | 21 => ⟨S4x256x16, .f32⟩
  | 22 => ⟨S4x256x16, .f32⟩
  | 23 => ⟨S_, .f32⟩
  | 24 => ⟨S4x256, .f32⟩
  | 25 => ⟨S_, .i32⟩
  | 26 => ⟨S1, .i32⟩
  | 27 => ⟨S4x512x256, .f32⟩
  | 28 => ⟨S4x256x16, .f32⟩
  | 29 => ⟨S4x256x16, .f32⟩
  | 30 => ⟨S4x1x256, .f32⟩
  | 31 => ⟨S4x256, .f32⟩
  | 32 => ⟨S4x256x1, .f32⟩
  | 33 => ⟨S4x1x16, .f32⟩
  | 34 => ⟨S4x16, .f32⟩
  | 35 => ⟨S4x1x16, .f32⟩
  | 36 => ⟨S4x256x16, .f32⟩
  | 37 => ⟨S4x256x16, .f32⟩
  | 38 => ⟨S4x256x16, .f32⟩
  | 39 => ⟨S4x256x16, .f32⟩
  | 40 => ⟨S4x1x16, .f32⟩
  | 41 => ⟨S4x16, .f32⟩
  | 42 => ⟨S4x1x16, .f32⟩
  | 43 => ⟨S4x256x16, .f32⟩
  | 44 => ⟨S4x256x16, .f32⟩
  | 45 => ⟨S_, .f32⟩
  | 46 => ⟨S4x256, .f32⟩
  | 47 => ⟨S_, .i32⟩
  | 48 => ⟨S1, .i32⟩
  | 49 => ⟨S4x512x256, .f32⟩
  | 50 => ⟨S4x256x16, .f32⟩
  | 51 => ⟨S4x256x16, .f32⟩
  | 52 => ⟨S4x1x256, .f32⟩
  | 53 => ⟨S4x256, .f32⟩
  | 54 => ⟨S4x256x1, .f32⟩
  | 55 => ⟨S4x1x16, .f32⟩
  | 56 => ⟨S4x16, .f32⟩
  | 57 => ⟨S4x1x16, .f32⟩
  | 58 => ⟨S4x256x16, .f32⟩
  | 59 => ⟨S4x256x16, .f32⟩
  | 60 => ⟨S4x256x16, .f32⟩
  | 61 => ⟨S4x256x16, .f32⟩
  | 62 => ⟨S4x1x16, .f32⟩
  | 63 => ⟨S4x16, .f32⟩
  | 64 => ⟨S4x1x16, .f32⟩
  | 65 => ⟨S4x256x16, .f32⟩
  | 66 => ⟨S4x256x16, .f32⟩
  | 67 => ⟨S_, .f32⟩
  | 68 => ⟨S4x256, .f32⟩
  | 69 => ⟨S_, .i32⟩
  | 70 => ⟨S1, .i32⟩
  | 71 => ⟨S4x512x256, .f32⟩
  | 72 => ⟨S4x256x16, .f32⟩
  | 73 => ⟨S4x256x16, .f32⟩
  | 74 => ⟨S4x1x256, .f32⟩
  | 75 => ⟨S4x256, .f32⟩
  | 76 => ⟨S4x256x1, .f32⟩
  | 77 => ⟨S4x1x16, .f32⟩
  | 78 => ⟨S4x16, .f32⟩
  | 79 => ⟨S4x1x16, .f32⟩
  | 80 => ⟨S4x256x16, .f32⟩
  | 81 => ⟨S4x256x16, .f32⟩
  | 82 => ⟨S4x256x16, .f32⟩
  | 83 => ⟨S4x256x16, .f32⟩
  | 84 => ⟨S4x1x16, .f32⟩
  | 85 => ⟨S4x16, .f32⟩
  | 86 => ⟨S4x1x16, .f32⟩
  | 87 => ⟨S4x256x16, .f32⟩
  | 88 => ⟨S4x256x16, .f32⟩
  | 89 => ⟨S_, .f32⟩
  | 90 => ⟨S4x256, .f32⟩
  | 91 => ⟨S_, .i32⟩
  | 92 => ⟨S1, .i32⟩
  | 93 => ⟨S4x512x256, .f32⟩
  | 94 => ⟨S4x256x16, .f32⟩
  | 95 => ⟨S4x256x16, .f32⟩
  | 96 => ⟨S4x1x256, .f32⟩
  | 97 => ⟨S4x256, .f32⟩
  | 98 => ⟨S4x256x1, .f32⟩
  | 99 => ⟨S4x1x16, .f32⟩
  | 100 => ⟨S4x16, .f32⟩
  | 101 => ⟨S4x1x16, .f32⟩
  | 102 => ⟨S4x256x16, .f32⟩
  | 103 => ⟨S4x256x16, .f32⟩
  | 104 => ⟨S4x256x16, .f32⟩
  | 105 => ⟨S4x256x16, .f32⟩
  | 106 => ⟨S4x1x16, .f32⟩
  | 107 => ⟨S4x16, .f32⟩
  | 108 => ⟨S4x1x16, .f32⟩
  | 109 => ⟨S4x256x16, .f32⟩
  | 110 => ⟨S4x256x16, .f32⟩
  | 111 => ⟨S_, .f32⟩
  | 112 => ⟨S4x256, .f32⟩
  | 113 => ⟨S_, .i32⟩
  | 114 => ⟨S1, .i32⟩
  | 115 => ⟨S4x512x256, .f32⟩
  | 116 => ⟨S4x256x16, .f32⟩
  | 117 => ⟨S4x256x16, .f32⟩
  | 118 => ⟨S4x1x256, .f32⟩
  | 119 => ⟨S4x256, .f32⟩
  | 120 => ⟨S4x256x1, .f32⟩
  | 121 => ⟨S4x1x16, .f32⟩
  | 122 => ⟨S4x16, .f32⟩
  | 123 => ⟨S4x1x16, .f32⟩
  | 124 => ⟨S4x256x16, .f32⟩
  | 125 => ⟨S4x256x16, .f32⟩
  | 126 => ⟨S4x256x16, .f32⟩
  | 127 => ⟨S4x256x16, .f32⟩
  | _ => ⟨S4x512x256, .f32⟩

abbrev hbmTy0_22 (i : Nat) : BufTy := match i % 128 with
  | 0 => ⟨S4x1x16, .f32⟩
  | 1 => ⟨S4x16, .f32⟩
  | 2 => ⟨S4x1x16, .f32⟩
  | 3 => ⟨S4x256x16, .f32⟩
  | 4 => ⟨S4x256x16, .f32⟩
  | 5 => ⟨S_, .f32⟩
  | 6 => ⟨S4x256, .f32⟩
  | 7 => ⟨S_, .i32⟩
  | 8 => ⟨S1, .i32⟩
  | 9 => ⟨S4x512x256, .f32⟩
  | 10 => ⟨S4x256x16, .f32⟩
  | 11 => ⟨S4x256x16, .f32⟩
  | 12 => ⟨S4x1x256, .f32⟩
  | 13 => ⟨S4x256, .f32⟩
  | 14 => ⟨S4x256x1, .f32⟩
  | 15 => ⟨S4x1x16, .f32⟩
  | 16 => ⟨S4x16, .f32⟩
  | 17 => ⟨S4x1x16, .f32⟩
  | 18 => ⟨S4x256x16, .f32⟩
  | 19 => ⟨S4x256x16, .f32⟩
  | 20 => ⟨S4x256x16, .f32⟩
  | 21 => ⟨S4x256x16, .f32⟩
  | 22 => ⟨S4x1x16, .f32⟩
  | 23 => ⟨S4x16, .f32⟩
  | 24 => ⟨S4x1x16, .f32⟩
  | 25 => ⟨S4x256x16, .f32⟩
  | 26 => ⟨S4x256x16, .f32⟩
  | 27 => ⟨S_, .f32⟩
  | 28 => ⟨S4x256, .f32⟩
  | 29 => ⟨S_, .i32⟩
  | 30 => ⟨S1, .i32⟩
  | 31 => ⟨S4x512x256, .f32⟩
  | 32 => ⟨S4x256x16, .f32⟩
  | 33 => ⟨S4x256x16, .f32⟩
  | 34 => ⟨S4x1x256, .f32⟩
  | 35 => ⟨S4x256, .f32⟩
  | 36 => ⟨S4x256x1, .f32⟩
  | 37 => ⟨S4x1x16, .f32⟩
  | 38 => ⟨S4x16, .f32⟩
  | 39 => ⟨S4x1x16, .f32⟩
  | 40 => ⟨S4x256x16, .f32⟩
  | 41 => ⟨S4x256x16, .f32⟩
  | 42 => ⟨S4x256x16, .f32⟩
  | 43 => ⟨S4x256x16, .f32⟩
  | 44 => ⟨S4x1x16, .f32⟩
  | 45 => ⟨S4x16, .f32⟩
  | 46 => ⟨S4x1x16, .f32⟩
  | 47 => ⟨S4x256x16, .f32⟩
  | 48 => ⟨S4x256x16, .f32⟩
  | 49 => ⟨S_, .f32⟩
  | 50 => ⟨S4x256, .f32⟩
  | 51 => ⟨S_, .i32⟩
  | 52 => ⟨S1, .i32⟩
  | 53 => ⟨S4x512x256, .f32⟩
  | 54 => ⟨S4x256x16, .f32⟩
  | 55 => ⟨S4x256x16, .f32⟩
  | 56 => ⟨S4x1x256, .f32⟩
  | 57 => ⟨S4x256, .f32⟩
  | 58 => ⟨S4x256x1, .f32⟩
  | 59 => ⟨S4x1x16, .f32⟩
  | 60 => ⟨S4x16, .f32⟩
  | 61 => ⟨S4x1x16, .f32⟩
  | 62 => ⟨S4x256x16, .f32⟩
  | 63 => ⟨S4x256x16, .f32⟩
  | 64 => ⟨S4x256x16, .f32⟩
  | 65 => ⟨S4x256x16, .f32⟩
  | 66 => ⟨S4x1x16, .f32⟩
  | 67 => ⟨S4x16, .f32⟩
  | 68 => ⟨S4x1x16, .f32⟩
  | 69 => ⟨S4x256x16, .f32⟩
  | 70 => ⟨S4x256x16, .f32⟩
  | 71 => ⟨S_, .f32⟩
  | 72 => ⟨S4x256, .f32⟩
  | 73 => ⟨S_, .i32⟩
  | 74 => ⟨S1, .i32⟩
  | 75 => ⟨S4x512x256, .f32⟩
  | 76 => ⟨S4x256x16, .f32⟩
  | 77 => ⟨S4x256x16, .f32⟩
  | 78 => ⟨S4x1x256, .f32⟩
  | 79 => ⟨S4x256, .f32⟩
  | 80 => ⟨S4x256x1, .f32⟩
  | 81 => ⟨S4x1x16, .f32⟩
  | 82 => ⟨S4x16, .f32⟩
  | 83 => ⟨S4x1x16, .f32⟩
  | 84 => ⟨S4x256x16, .f32⟩
  | 85 => ⟨S4x256x16, .f32⟩
  | 86 => ⟨S4x256x16, .f32⟩
  | 87 => ⟨S4x256x16, .f32⟩
  | 88 => ⟨S4x1x16, .f32⟩
  | 89 => ⟨S4x16, .f32⟩
  | 90 => ⟨S4x1x16, .f32⟩
  | 91 => ⟨S4x256x16, .f32⟩
  | 92 => ⟨S4x256x16, .f32⟩
  | 93 => ⟨S_, .f32⟩
  | 94 => ⟨S4x256, .f32⟩
  | 95 => ⟨S_, .i32⟩
  | 96 => ⟨S1, .i32⟩
  | 97 => ⟨S4x512x256, .f32⟩
  | 98 => ⟨S4x256x16, .f32⟩
  | 99 => ⟨S4x256x16, .f32⟩
  | 100 => ⟨S4x1x256, .f32⟩
  | 101 => ⟨S4x256, .f32⟩
  | 102 => ⟨S4x256x1, .f32⟩
  | 103 => ⟨S4x1x16, .f32⟩
  | 104 => ⟨S4x16, .f32⟩
  | 105 => ⟨S4x1x16, .f32⟩
  | 106 => ⟨S4x256x16, .f32⟩
  | 107 => ⟨S4x256x16, .f32⟩
  | 108 => ⟨S4x256x16, .f32⟩
  | 109 => ⟨S4x256x16, .f32⟩
  | 110 => ⟨S4x1x16, .f32⟩
  | 111 => ⟨S4x16, .f32⟩
  | 112 => ⟨S4x1x16, .f32⟩
  | 113 => ⟨S4x256x16, .f32⟩
  | 114 => ⟨S4x256x16, .f32⟩
  | 115 => ⟨S_, .f32⟩
  | 116 => ⟨S4x256, .f32⟩
  | 117 => ⟨S_, .i32⟩
  | 118 => ⟨S1, .i32⟩
  | 119 => ⟨S4x512x256, .f32⟩
  | 120 => ⟨S4x256x16, .f32⟩
  | 121 => ⟨S4x256x16, .f32⟩
  | 122 => ⟨S4x1x256, .f32⟩
  | 123 => ⟨S4x256, .f32⟩
  | 124 => ⟨S4x256x1, .f32⟩
  | 125 => ⟨S4x1x16, .f32⟩
  | 126 => ⟨S4x16, .f32⟩
  | 127 => ⟨S4x1x16, .f32⟩
  | _ => ⟨S4x512x256, .f32⟩

abbrev hbmTy0_23 (i : Nat) : BufTy := match i % 128 with
  | 0 => ⟨S4x256x16, .f32⟩
  | 1 => ⟨S4x256x16, .f32⟩
  | 2 => ⟨S4x256x16, .f32⟩
  | 3 => ⟨S4x256x16, .f32⟩
  | 4 => ⟨S4x1x16, .f32⟩
  | 5 => ⟨S4x16, .f32⟩
  | 6 => ⟨S4x1x16, .f32⟩
  | 7 => ⟨S4x256x16, .f32⟩
  | 8 => ⟨S4x256x16, .f32⟩
  | 9 => ⟨S_, .f32⟩
  | 10 => ⟨S4x256, .f32⟩
  | 11 => ⟨S_, .i32⟩
  | 12 => ⟨S1, .i32⟩
  | 13 => ⟨S4x512x256, .f32⟩
  | 14 => ⟨S4x256x16, .f32⟩
  | 15 => ⟨S4x256x16, .f32⟩
  | 16 => ⟨S4x1x256, .f32⟩
  | 17 => ⟨S4x256, .f32⟩
  | 18 => ⟨S4x256x1, .f32⟩
  | 19 => ⟨S4x1x16, .f32⟩
  | 20 => ⟨S4x16, .f32⟩
  | 21 => ⟨S4x1x16, .f32⟩
  | 22 => ⟨S4x256x16, .f32⟩
  | 23 => ⟨S4x256x16, .f32⟩
  | 24 => ⟨S4x256x16, .f32⟩
  | 25 => ⟨S4x256x16, .f32⟩
  | 26 => ⟨S4x1x16, .f32⟩
  | 27 => ⟨S4x16, .f32⟩
  | 28 => ⟨S4x1x16, .f32⟩
  | 29 => ⟨S4x256x16, .f32⟩
  | 30 => ⟨S4x256x16, .f32⟩
  | 31 => ⟨S_, .f32⟩
  | 32 => ⟨S4x256, .f32⟩
  | 33 => ⟨S_, .i32⟩
  | 34 => ⟨S1, .i32⟩
  | 35 => ⟨S4x512x256, .f32⟩
  | 36 => ⟨S4x256x16, .f32⟩
  | 37 => ⟨S4x256x16, .f32⟩
  | 38 => ⟨S4x1x256, .f32⟩
  | 39 => ⟨S4x256, .f32⟩
  | 40 => ⟨S4x256x1, .f32⟩
  | 41 => ⟨S4x1x16, .f32⟩
  | 42 => ⟨S4x16, .f32⟩
  | 43 => ⟨S4x1x16, .f32⟩
  | 44 => ⟨S4x256x16, .f32⟩
  | 45 => ⟨S4x256x16, .f32⟩
  | 46 => ⟨S4x256x16, .f32⟩
  | 47 => ⟨S4x256x16, .f32⟩
  | 48 => ⟨S4x1x16, .f32⟩
  | 49 => ⟨S4x16, .f32⟩
  | 50 => ⟨S4x1x16, .f32⟩
  | 51 => ⟨S4x256x16, .f32⟩
  | 52 => ⟨S4x256x16, .f32⟩
  | 53 => ⟨S_, .f32⟩
  | 54 => ⟨S4x256, .f32⟩
  | 55 => ⟨S_, .i32⟩
  | 56 => ⟨S1, .i32⟩
  | 57 => ⟨S4x512x256, .f32⟩
  | 58 => ⟨S4x256x16, .f32⟩
  | 59 => ⟨S4x256x16, .f32⟩
  | 60 => ⟨S4x1x256, .f32⟩
  | 61 => ⟨S4x256, .f32⟩
  | 62 => ⟨S4x256x1, .f32⟩
  | 63 => ⟨S4x1x16, .f32⟩
  | 64 => ⟨S4x16, .f32⟩
  | 65 => ⟨S4x1x16, .f32⟩
  | 66 => ⟨S4x256x16, .f32⟩
  | 67 => ⟨S4x256x16, .f32⟩
  | 68 => ⟨S4x256x16, .f32⟩
  | 69 => ⟨S4x256x16, .f32⟩
  | 70 => ⟨S4x1x16, .f32⟩
  | 71 => ⟨S4x16, .f32⟩
  | 72 => ⟨S4x1x16, .f32⟩
  | 73 => ⟨S4x256x16, .f32⟩
  | 74 => ⟨S4x256x16, .f32⟩
  | 75 => ⟨S_, .f32⟩
  | 76 => ⟨S4x256, .f32⟩
  | 77 => ⟨S_, .i32⟩
  | 78 => ⟨S1, .i32⟩
  | 79 => ⟨S4x512x256, .f32⟩
  | 80 => ⟨S4x256x16, .f32⟩
  | 81 => ⟨S4x256x16, .f32⟩
  | 82 => ⟨S4x1x256, .f32⟩
  | 83 => ⟨S4x256, .f32⟩
  | 84 => ⟨S4x256x1, .f32⟩
  | 85 => ⟨S4x1x16, .f32⟩
  | 86 => ⟨S4x16, .f32⟩
  | 87 => ⟨S4x1x16, .f32⟩
  | 88 => ⟨S4x256x16, .f32⟩
  | 89 => ⟨S4x256x16, .f32⟩
  | 90 => ⟨S4x256x16, .f32⟩
  | 91 => ⟨S4x256x16, .f32⟩
  | 92 => ⟨S4x1x16, .f32⟩
  | 93 => ⟨S4x16, .f32⟩
  | 94 => ⟨S4x1x16, .f32⟩
  | 95 => ⟨S4x256x16, .f32⟩
  | 96 => ⟨S4x256x16, .f32⟩
  | 97 => ⟨S_, .f32⟩
  | 98 => ⟨S4x256, .f32⟩
  | 99 => ⟨S_, .i32⟩
  | 100 => ⟨S1, .i32⟩
  | 101 => ⟨S4x512x256, .f32⟩
  | 102 => ⟨S4x256x16, .f32⟩
  | 103 => ⟨S4x256x16, .f32⟩
  | 104 => ⟨S4x1x256, .f32⟩
  | 105 => ⟨S4x256, .f32⟩
  | 106 => ⟨S4x256x1, .f32⟩
  | 107 => ⟨S4x1x16, .f32⟩
  | 108 => ⟨S4x16, .f32⟩
  | 109 => ⟨S4x1x16, .f32⟩
  | 110 => ⟨S4x256x16, .f32⟩
  | 111 => ⟨S4x256x16, .f32⟩
  | 112 => ⟨S4x256x16, .f32⟩
  | 113 => ⟨S4x256x16, .f32⟩
  | 114 => ⟨S4x1x16, .f32⟩
  | 115 => ⟨S4x16, .f32⟩
  | 116 => ⟨S4x1x16, .f32⟩
  | 117 => ⟨S4x256x16, .f32⟩
  | 118 => ⟨S4x256x16, .f32⟩
  | 119 => ⟨S_, .f32⟩
  | 120 => ⟨S4x256, .f32⟩
  | 121 => ⟨S_, .i32⟩
  | 122 => ⟨S1, .i32⟩
  | 123 => ⟨S4x512x256, .f32⟩
  | 124 => ⟨S4x256x16, .f32⟩
  | 125 => ⟨S4x256x16, .f32⟩
  | 126 => ⟨S4x1x256, .f32⟩
  | 127 => ⟨S4x256, .f32⟩
  | _ => ⟨S4x512x256, .f32⟩

abbrev hbmTy0_24 (i : Nat) : BufTy := match i % 128 with
  | 0 => ⟨S4x256x1, .f32⟩
  | 1 => ⟨S4x1x16, .f32⟩
  | 2 => ⟨S4x16, .f32⟩
  | 3 => ⟨S4x1x16, .f32⟩
  | 4 => ⟨S4x256x16, .f32⟩
  | 5 => ⟨S4x256x16, .f32⟩
  | 6 => ⟨S4x256x16, .f32⟩
  | 7 => ⟨S4x256x16, .f32⟩
  | 8 => ⟨S4x1x16, .f32⟩
  | 9 => ⟨S4x16, .f32⟩
  | 10 => ⟨S4x1x16, .f32⟩
  | 11 => ⟨S4x256x16, .f32⟩
  | 12 => ⟨S4x256x16, .f32⟩
  | 13 => ⟨S_, .f32⟩
  | 14 => ⟨S4x256, .f32⟩
  | 15 => ⟨S_, .i32⟩
  | 16 => ⟨S1, .i32⟩
  | 17 => ⟨S4x512x256, .f32⟩
  | 18 => ⟨S4x256x16, .f32⟩
  | 19 => ⟨S4x256x16, .f32⟩
  | 20 => ⟨S4x1x256, .f32⟩
  | 21 => ⟨S4x256, .f32⟩
  | 22 => ⟨S4x256x1, .f32⟩
  | 23 => ⟨S4x1x16, .f32⟩
  | 24 => ⟨S4x16, .f32⟩
  | 25 => ⟨S4x1x16, .f32⟩
  | 26 => ⟨S4x256x16, .f32⟩
  | 27 => ⟨S4x256x16, .f32⟩
  | 28 => ⟨S4x256x16, .f32⟩
  | 29 => ⟨S4x256x16, .f32⟩
  | 30 => ⟨S4x1x16, .f32⟩
  | 31 => ⟨S4x16, .f32⟩
  | 32 => ⟨S4x1x16, .f32⟩
  | 33 => ⟨S4x256x16, .f32⟩
  | 34 => ⟨S4x256x16, .f32⟩
  | 35 => ⟨S_, .f32⟩
  | 36 => ⟨S4x256, .f32⟩
  | 37 => ⟨S_, .i32⟩
  | 38 => ⟨S1, .i32⟩
  | 39 => ⟨S4x512x256, .f32⟩
  | 40 => ⟨S4x256x16, .f32⟩
  | 41 => ⟨S4x256x16, .f32⟩
  | 42 => ⟨S4x1x256, .f32⟩
  | 43 => ⟨S4x256, .f32⟩
  | 44 => ⟨S4x256x1, .f32⟩
  | 45 => ⟨S4x1x16, .f32⟩
  | 46 => ⟨S4x16, .f32⟩
  | 47 => ⟨S4x1x16, .f32⟩
  | 48 => ⟨S4x256x16, .f32⟩
  | 49 => ⟨S4x256x16, .f32⟩
  | 50 => ⟨S4x256x16, .f32⟩
  | 51 => ⟨S4x256x16, .f32⟩
  | 52 => ⟨S4x1x16, .f32⟩
  | 53 => ⟨S4x16, .f32⟩
  | 54 => ⟨S4x1x16, .f32⟩
  | 55 => ⟨S4x256x16, .f32⟩
  | 56 => ⟨S4x256x16, .f32⟩
  | 57 => ⟨S_, .f32⟩
  | 58 => ⟨S4x256, .f32⟩
  | 59 => ⟨S_, .i32⟩
  | 60 => ⟨S1, .i32⟩
  | 61 => ⟨S4x512x256, .f32⟩
  | 62 => ⟨S4x256x16, .f32⟩
  | 63 => ⟨S4x256x16, .f32⟩
  | 64 => ⟨S4x1x256, .f32⟩
  | 65 => ⟨S4x256, .f32⟩
  | 66 => ⟨S4x256x1, .f32⟩
  | 67 => ⟨S4x1x16, .f32⟩
  | 68 => ⟨S4x16, .f32⟩
  | 69 => ⟨S4x1x16, .f32⟩
  | 70 => ⟨S4x256x16, .f32⟩
  | 71 => ⟨S4x256x16, .f32⟩
  | 72 => ⟨S4x256x16, .f32⟩
  | 73 => ⟨S4x256x16, .f32⟩
  | 74 => ⟨S4x1x16, .f32⟩
  | 75 => ⟨S4x16, .f32⟩
  | 76 => ⟨S4x1x16, .f32⟩
  | 77 => ⟨S4x256x16, .f32⟩
  | 78 => ⟨S4x256x16, .f32⟩
  | 79 => ⟨S_, .f32⟩
  | 80 => ⟨S4x256, .f32⟩
  | 81 => ⟨S_, .i32⟩
  | 82 => ⟨S1, .i32⟩
  | 83 => ⟨S4x512x256, .f32⟩
  | 84 => ⟨S4x256x16, .f32⟩
  | 85 => ⟨S4x256x16, .f32⟩
  | 86 => ⟨S4x1x256, .f32⟩
  | 87 => ⟨S4x256, .f32⟩
  | 88 => ⟨S4x256x1, .f32⟩
  | 89 => ⟨S4x1x16, .f32⟩
  | 90 => ⟨S4x16, .f32⟩
  | 91 => ⟨S4x1x16, .f32⟩
  | 92 => ⟨S4x256x16, .f32⟩
  | 93 => ⟨S4x256x16, .f32⟩
  | 94 => ⟨S4x256x16, .f32⟩
  | 95 => ⟨S4x256x16, .f32⟩
  | 96 => ⟨S4x1x16, .f32⟩
  | 97 => ⟨S4x16, .f32⟩
  | 98 => ⟨S4x1x16, .f32⟩
  | 99 => ⟨S4x256x16, .f32⟩
  | 100 => ⟨S4x256x16, .f32⟩
  | 101 => ⟨S_, .f32⟩
  | 102 => ⟨S4x256, .f32⟩
  | 103 => ⟨S_, .i32⟩
  | 104 => ⟨S1, .i32⟩
  | 105 => ⟨S4x512x256, .f32⟩
  | 106 => ⟨S4x256x16, .f32⟩
  | 107 => ⟨S4x256x16, .f32⟩
  | 108 => ⟨S4x1x256, .f32⟩
  | 109 => ⟨S4x256, .f32⟩
  | 110 => ⟨S4x256x1, .f32⟩
  | 111 => ⟨S4x1x16, .f32⟩
  | 112 => ⟨S4x16, .f32⟩
  | 113 => ⟨S4x1x16, .f32⟩
  | 114 => ⟨S4x256x16, .f32⟩
  | 115 => ⟨S4x256x16, .f32⟩
  | 116 => ⟨S4x256x16, .f32⟩
  | 117 => ⟨S4x256x16, .f32⟩
  | 118 => ⟨S4x1x16, .f32⟩
  | 119 => ⟨S4x16, .f32⟩
  | 120 => ⟨S4x1x16, .f32⟩
  | 121 => ⟨S4x256x16, .f32⟩
  | 122 => ⟨S4x256x16, .f32⟩
  | 123 => ⟨S_, .f32⟩
  | 124 => ⟨S4x256, .f32⟩
  | 125 => ⟨S_, .i32⟩
  | 126 => ⟨S1, .i32⟩
  | 127 => ⟨S4x512x256, .f32⟩
  | _ => ⟨S4x512x256, .f32⟩

abbrev hbmTy0_25 (i : Nat) : BufTy := match i % 128 with
  | 0 => ⟨S4x256x16, .f32⟩
  | 1 => ⟨S4x256x16, .f32⟩
  | 2 => ⟨S4x1x256, .f32⟩
  | 3 => ⟨S4x256, .f32⟩
  | 4 => ⟨S4x256x1, .f32⟩
  | 5 => ⟨S4x1x16, .f32⟩
  | 6 => ⟨S4x16, .f32⟩
  | 7 => ⟨S4x1x16, .f32⟩
  | 8 => ⟨S4x256x16, .f32⟩
  | 9 => ⟨S4x256x16, .f32⟩
  | 10 => ⟨S4x256x16, .f32⟩
  | 11 => ⟨S4x256x16, .f32⟩
  | 12 => ⟨S4x1x16, .f32⟩
  | 13 => ⟨S4x16, .f32⟩
  | 14 => ⟨S4x1x16, .f32⟩
  | 15 => ⟨S4x256x16, .f32⟩
  | 16 => ⟨S4x256x16, .f32⟩
  | 17 => ⟨S_, .f32⟩
  | 18 => ⟨S4x256, .f32⟩
  | 19 => ⟨S_, .i32⟩
  | 20 => ⟨S1, .i32⟩
  | 21 => ⟨S4x512x256, .f32⟩
  | 22 => ⟨S4x256x16, .f32⟩
  | 23 => ⟨S4x256x16, .f32⟩
  | 24 => ⟨S4x1x256, .f32⟩
  | 25 => ⟨S4x256, .f32⟩
  | 26 => ⟨S4x256x1, .f32⟩
  | 27 => ⟨S4x1x16, .f32⟩
  | 28 => ⟨S4x16, .f32⟩
  | 29 => ⟨S4x1x16, .f32⟩
  | 30 => ⟨S4x256x16, .f32⟩
  | 31 => ⟨S4x256x16, .f32⟩
  | 32 => ⟨S4x256x16, .f32⟩
  | 33 => ⟨S4x256x16, .f32⟩
  | 34 => ⟨S4x1x16, .f32⟩
  | 35 => ⟨S4x16, .f32⟩
  | 36 => ⟨S4x1x16, .f32⟩
  | 37 => ⟨S4x256x16, .f32⟩
  | 38 => ⟨S4x256x16, .f32⟩
  | 39 => ⟨S_, .f32⟩
  | 40 => ⟨S4x256, .f32⟩
  | 41 => ⟨S_, .i32⟩
  | 42 => ⟨S1, .i32⟩
  | 43 => ⟨S4x512x256, .f32⟩
  | 44 => ⟨S4x256x16, .f32⟩
  | 45 => ⟨S4x256x16, .f32⟩
  | 46 => ⟨S4x1x256, .f32⟩
  | 47 => ⟨S4x256, .f32⟩
  | 48 => ⟨S4x256x1, .f32⟩
  | 49 => ⟨S4x1x16, .f32⟩
  | 50 => ⟨S4x16, .f32⟩
  | 51 => ⟨S4x1x16, .f32⟩
  | 52 => ⟨S4x256x16, .f32⟩
  | 53 => ⟨S4x256x16, .f32⟩
  | 54 => ⟨S4x256x16, .f32⟩
  | 55 => ⟨S4x256x16, .f32⟩
  | 56 => ⟨S4x1x16, .f32⟩
  | 57 => ⟨S4x16, .f32⟩
  | 58 => ⟨S4x1x16, .f32⟩
  | 59 => ⟨S4x256x16, .f32⟩
  | 60 => ⟨S4x256x16, .f32⟩
  | 61 => ⟨S_, .f32⟩
  | 62 => ⟨S4x256, .f32⟩
  | 63 => ⟨S_, .i32⟩
  | 64 => ⟨S1, .i32⟩
  | 65 => ⟨S4x512x256, .f32⟩
  | 66 => ⟨S4x256x16, .f32⟩
  | 67 => ⟨S4x256x16, .f32⟩
  | 68 => ⟨S4x1x256, .f32⟩
  | 69 => ⟨S4x256, .f32⟩
  | 70 => ⟨S4x256x1, .f32⟩
  | 71 => ⟨S4x1x16, .f32⟩
  | 72 => ⟨S4x16, .f32⟩
  | 73 => ⟨S4x1x16, .f32⟩
  | 74 => ⟨S4x256x16, .f32⟩
  | 75 => ⟨S4x256x16, .f32⟩
  | 76 => ⟨S4x256x16, .f32⟩
  | 77 => ⟨S4x256x16, .f32⟩
  | 78 => ⟨S4x1x16, .f32⟩
  | 79 => ⟨S4x16, .f32⟩
  | 80 => ⟨S4x1x16, .f32⟩
  | 81 => ⟨S4x256x16, .f32⟩
  | 82 => ⟨S4x256x16, .f32⟩
  | 83 => ⟨S_, .f32⟩
  | 84 => ⟨S4x256, .f32⟩
  | 85 => ⟨S_, .i32⟩
  | 86 => ⟨S1, .i32⟩
  | 87 => ⟨S4x512x256, .f32⟩
  | 88 => ⟨S4x256x16, .f32⟩
  | 89 => ⟨S4x256x16, .f32⟩
  | 90 => ⟨S4x1x256, .f32⟩
  | 91 => ⟨S4x256, .f32⟩
  | 92 => ⟨S4x256x1, .f32⟩
  | 93 => ⟨S4x1x16, .f32⟩
  | 94 => ⟨S4x16, .f32⟩
  | 95 => ⟨S4x1x16, .f32⟩
  | 96 => ⟨S4x256x16, .f32⟩
  | 97 => ⟨S4x256x16, .f32⟩
  | 98 => ⟨S4x256x16, .f32⟩
  | 99 => ⟨S4x256x16, .f32⟩
  | 100 => ⟨S4x1x16, .f32⟩
  | 101 => ⟨S4x16, .f32⟩
  | 102 => ⟨S4x1x16, .f32⟩
  | 103 => ⟨S4x256x16, .f32⟩
  | 104 => ⟨S4x256x16, .f32⟩
  | 105 => ⟨S_, .f32⟩
  | 106 => ⟨S4x256, .f32⟩
  | 107 => ⟨S_, .i32⟩
  | 108 => ⟨S1, .i32⟩
  | 109 => ⟨S4x512x256, .f32⟩
  | 110 => ⟨S4x256x16, .f32⟩
  | 111 => ⟨S4x256x16, .f32⟩
  | 112 => ⟨S4x1x256, .f32⟩
  | 113 => ⟨S4x256, .f32⟩
  | 114 => ⟨S4x256x1, .f32⟩
  | 115 => ⟨S4x1x16, .f32⟩
  | 116 => ⟨S4x16, .f32⟩
  | 117 => ⟨S4x1x16, .f32⟩
  | 118 => ⟨S4x256x16, .f32⟩
  | 119 => ⟨S4x256x16, .f32⟩
  | 120 => ⟨S4x256x16, .f32⟩
  | 121 => ⟨S4x256x16, .f32⟩
  | 122 => ⟨S4x1x16, .f32⟩
  | 123 => ⟨S4x16, .f32⟩
  | 124 => ⟨S4x1x16, .f32⟩
  | 125 => ⟨S4x256x16, .f32⟩
  | 126 => ⟨S4x256x16, .f32⟩
  | 127 => ⟨S_, .f32⟩
  | _ => ⟨S4x512x256, .f32⟩

abbrev hbmTy0_26 (i : Nat) : BufTy := match i % 128 with
  | 0 => ⟨S4x256, .f32⟩
  | 1 => ⟨S_, .i32⟩
  | 2 => ⟨S1, .i32⟩
  | 3 => ⟨S4x512x256, .f32⟩
  | 4 => ⟨S4x256x16, .f32⟩
  | 5 => ⟨S4x256x16, .f32⟩
  | 6 => ⟨S4x1x256, .f32⟩
  | 7 => ⟨S4x256, .f32⟩
  | 8 => ⟨S4x256x1, .f32⟩
  | 9 => ⟨S4x1x16, .f32⟩
  | 10 => ⟨S4x16, .f32⟩
  | 11 => ⟨S4x1x16, .f32⟩
  | 12 => ⟨S4x256x16, .f32⟩
  | 13 => ⟨S4x256x16, .f32⟩
  | 14 => ⟨S4x256x16, .f32⟩
  | 15 => ⟨S4x256x16, .f32⟩
  | 16 => ⟨S4x1x16, .f32⟩
  | 17 => ⟨S4x16, .f32⟩
  | 18 => ⟨S4x1x16, .f32⟩
  | 19 => ⟨S4x256x16, .f32⟩
  | 20 => ⟨S4x256x16, .f32⟩
  | 21 => ⟨S_, .f32⟩
  | 22 => ⟨S4x256, .f32⟩
  | 23 => ⟨S_, .i32⟩
  | 24 => ⟨S1, .i32⟩
  | 25 => ⟨S4x512x256, .f32⟩
  | 26 => ⟨S4x256x16, .f32⟩
  | 27 => ⟨S4x256x16, .f32⟩
  | 28 => ⟨S4x1x256, .f32⟩
  | 29 => ⟨S4x256, .f32⟩
  | 30 => ⟨S4x256x1, .f32⟩
  | 31 => ⟨S4x1x16, .f32⟩
  | 32 => ⟨S4x16, .f32⟩
  | 33 => ⟨S4x1x16, .f32⟩
  | 34 => ⟨S4x256x16, .f32⟩
  | 35 => ⟨S4x256x16, .f32⟩
  | 36 => ⟨S4x256x16, .f32⟩
  | 37 => ⟨S4x256x16, .f32⟩
  | 38 => ⟨S4x1x16, .f32⟩
  | 39 => ⟨S4x16, .f32⟩
  | 40 => ⟨S4x1x16, .f32⟩
  | 41 => ⟨S4x256x16, .f32⟩
  | 42 => ⟨S4x256x16, .f32⟩
  | 43 => ⟨S_, .f32⟩
  | 44 => ⟨S4x256, .f32⟩
  | 45 => ⟨S_, .i32⟩
  | 46 => ⟨S1, .i32⟩
  | 47 => ⟨S4x512x256, .f32⟩
  | 48 => ⟨S4x256x16, .f32⟩
  | 49 => ⟨S4x256x16, .f32⟩
  | 50 => ⟨S4x1x256, .f32⟩
  | 51 => ⟨S4x256, .f32⟩
  | 52 => ⟨S4x256x1, .f32⟩
  | 53 => ⟨S4x1x16, .f32⟩
  | 54 => ⟨S4x16, .f32⟩
  | 55 => ⟨S4x1x16, .f32⟩
  | 56 => ⟨S4x256x16, .f32⟩
  | 57 => ⟨S4x256x16, .f32⟩
  | 58 => ⟨S4x256x16, .f32⟩
  | 59 => ⟨S4x256x16, .f32⟩
  | 60 => ⟨S4x1x16, .f32⟩
  | 61 => ⟨S4x16, .f32⟩
  | 62 => ⟨S4x1x16, .f32⟩
  | 63 => ⟨S4x256x16, .f32⟩
  | 64 => ⟨S4x256x16, .f32⟩
  | 65 => ⟨S_, .f32⟩
  | 66 => ⟨S4x256, .f32⟩
  | 67 => ⟨S_, .i32⟩
  | 68 => ⟨S1, .i32⟩
  | 69 => ⟨S4x512x256, .f32⟩
  | 70 => ⟨S4x256x16, .f32⟩
  | 71 => ⟨S4x256x16, .f32⟩
  | 72 => ⟨S4x1x256, .f32⟩
  | 73 => ⟨S4x256, .f32⟩
  | 74 => ⟨S4x256x1, .f32⟩
  | 75 => ⟨S4x1x16, .f32⟩
  | 76 => ⟨S4x16, .f32⟩
  | 77 => ⟨S4x1x16, .f32⟩
  | 78 => ⟨S4x256x16, .f32⟩
  | 79 => ⟨S4x256x16, .f32⟩
  | 80 => ⟨S4x256x16, .f32⟩
  | 81 => ⟨S4x256x16, .f32⟩
  | 82 => ⟨S4x1x16, .f32⟩
  | 83 => ⟨S4x16, .f32⟩
  | 84 => ⟨S4x1x16, .f32⟩
  | 85 => ⟨S4x256x16, .f32⟩
  | 86 => ⟨S4x256x16, .f32⟩
  | 87 => ⟨S_, .f32⟩
  | 88 => ⟨S4x256, .f32⟩
  | 89 => ⟨S_, .i32⟩
  | 90 => ⟨S1, .i32⟩
  | 91 => ⟨S4x512x256, .f32⟩
  | 92 => ⟨S4x256x16, .f32⟩
  | 93 => ⟨S4x256x16, .f32⟩
  | 94 => ⟨S4x1x256, .f32⟩
  | 95 => ⟨S4x256, .f32⟩
  | 96 => ⟨S4x256x1, .f32⟩
  | 97 => ⟨S4x1x16, .f32⟩
  | 98 => ⟨S4x16, .f32⟩
  | 99 => ⟨S4x1x16, .f32⟩
  | 100 => ⟨S4x256x16, .f32⟩
  | 101 => ⟨S4x256x16, .f32⟩
  | 102 => ⟨S4x256x16, .f32⟩
  | 103 => ⟨S4x256x16, .f32⟩
  | 104 => ⟨S4x1x16, .f32⟩
  | 105 => ⟨S4x16, .f32⟩
  | 106 => ⟨S4x1x16, .f32⟩
  | 107 => ⟨S4x256x16, .f32⟩
  | 108 => ⟨S4x256x16, .f32⟩
  | 109 => ⟨S_, .f32⟩
  | 110 => ⟨S4x256, .f32⟩
  | 111 => ⟨S_, .i32⟩
  | 112 => ⟨S1, .i32⟩
  | 113 => ⟨S4x512x256, .f32⟩
  | 114 => ⟨S4x256x16, .f32⟩
  | 115 => ⟨S4x256x16, .f32⟩
  | 116 => ⟨S4x1x256, .f32⟩
  | 117 => ⟨S4x256, .f32⟩
  | 118 => ⟨S4x256x1, .f32⟩
  | 119 => ⟨S4x1x16, .f32⟩
  | 120 => ⟨S4x16, .f32⟩
  | 121 => ⟨S4x1x16, .f32⟩
  | 122 => ⟨S4x256x16, .f32⟩
  | 123 => ⟨S4x256x16, .f32⟩
  | 124 => ⟨S4x256x16, .f32⟩
  | 125 => ⟨S4x256x16, .f32⟩
  | 126 => ⟨S4x1x16, .f32⟩
  | 127 => ⟨S4x16, .f32⟩
  | _ => ⟨S4x512x256, .f32⟩

abbrev hbmTy0_27 (i : Nat) : BufTy := match i % 128 with
  | 0 => ⟨S4x1x16, .f32⟩
  | 1 => ⟨S4x256x16, .f32⟩
  | 2 => ⟨S4x256x16, .f32⟩
  | 3 => ⟨S_, .f32⟩
  | 4 => ⟨S4x256, .f32⟩
  | 5 => ⟨S_, .i32⟩
  | 6 => ⟨S1, .i32⟩
  | 7 => ⟨S4x512x256, .f32⟩
  | 8 => ⟨S4x256x16, .f32⟩
  | 9 => ⟨S4x256x16, .f32⟩
  | 10 => ⟨S4x1x256, .f32⟩
  | 11 => ⟨S4x256, .f32⟩
  | 12 => ⟨S4x256x1, .f32⟩
  | 13 => ⟨S4x1x16, .f32⟩
  | 14 => ⟨S4x16, .f32⟩
  | 15 => ⟨S4x1x16, .f32⟩
  | 16 => ⟨S4x256x16, .f32⟩
  | 17 => ⟨S4x256x16, .f32⟩
  | 18 => ⟨S4x256x16, .f32⟩
  | 19 => ⟨S4x256x16, .f32⟩
  | 20 => ⟨S4x1x16, .f32⟩
  | 21 => ⟨S4x16, .f32⟩
  | 22 => ⟨S4x1x16, .f32⟩
  | 23 => ⟨S4x256x16, .f32⟩
  | 24 => ⟨S4x256x16, .f32⟩
  | 25 => ⟨S_, .f32⟩
  | 26 => ⟨S4x256, .f32⟩
  | 27 => ⟨S_, .i32⟩
  | 28 => ⟨S1, .i32⟩
  | 29 => ⟨S4x512x256, .f32⟩
  | 30 => ⟨S4x256x16, .f32⟩
  | 31 => ⟨S4x256x16, .f32⟩
  | 32 => ⟨S4x1x256, .f32⟩
  | 33 => ⟨S4x256, .f32⟩
  | 34 => ⟨S4x256x1, .f32⟩
  | 35 => ⟨S4x1x16, .f32⟩
  | 36 => ⟨S4x16, .f32⟩
  | 37 => ⟨S4x1x16, .f32⟩
  | 38 => ⟨S4x256x16, .f32⟩
  | 39 => ⟨S4x256x16, .f32⟩
  | 40 => ⟨S4x256x16, .f32⟩
  | 41 => ⟨S4x256x16, .f32⟩
  | 42 => ⟨S4x1x16, .f32⟩
  | 43 => ⟨S4x16, .f32⟩
  | 44 => ⟨S4x1x16, .f32⟩
  | 45 => ⟨S4x256x16, .f32⟩
  | 46 => ⟨S4x256x16, .f32⟩
  | 47 => ⟨S_, .f32⟩
  | 48 => ⟨S4x256, .f32⟩
  | 49 => ⟨S_, .i32⟩
  | 50 => ⟨S1, .i32⟩
  | 51 => ⟨S4x512x256, .f32⟩
  | 52 => ⟨S4x256x16, .f32⟩
  | 53 => ⟨S4x256x16, .f32⟩
  | 54 => ⟨S4x1x256, .f32⟩
  | 55 => ⟨S4x256, .f32⟩
  | 56 => ⟨S4x256x1, .f32⟩
  | 57 => ⟨S4x1x16, .f32⟩
  | 58 => ⟨S4x16, .f32⟩
  | 59 => ⟨S4x1x16, .f32⟩
  | 60 => ⟨S4x256x16, .f32⟩
  | 61 => ⟨S4x256x16, .f32⟩
  | 62 => ⟨S4x256x16, .f32⟩
  | 63 => ⟨S4x256x16, .f32⟩
  | 64 => ⟨S4x1x16, .f32⟩
  | 65 => ⟨S4x16, .f32⟩
  | 66 => ⟨S4x1x16, .f32⟩
  | 67 => ⟨S4x256x16, .f32⟩
  | 68 => ⟨S4x256x16, .f32⟩
  | 69 => ⟨S_, .f32⟩
  | 70 => ⟨S4x256, .f32⟩
  | 71 => ⟨S_, .i32⟩
  | 72 => ⟨S1, .i32⟩
  | 73 => ⟨S4x512x256, .f32⟩
  | 74 => ⟨S4x256x16, .f32⟩
  | 75 => ⟨S4x256x16, .f32⟩
  | 76 => ⟨S4x1x256, .f32⟩
  | 77 => ⟨S4x256, .f32⟩
  | 78 => ⟨S4x256x1, .f32⟩
  | 79 => ⟨S4x1x16, .f32⟩
  | 80 => ⟨S4x16, .f32⟩
  | 81 => ⟨S4x1x16, .f32⟩
  | 82 => ⟨S4x256x16, .f32⟩
  | 83 => ⟨S4x256x16, .f32⟩
  | 84 => ⟨S4x256x16, .f32⟩
  | 85 => ⟨S4x256x16, .f32⟩
  | 86 => ⟨S4x1x16, .f32⟩
  | 87 => ⟨S4x16, .f32⟩
  | 88 => ⟨S4x1x16, .f32⟩
  | 89 => ⟨S4x256x16, .f32⟩
  | 90 => ⟨S4x256x16, .f32⟩
  | 91 => ⟨S_, .f32⟩
  | 92 => ⟨S4x256, .f32⟩
  | 93 => ⟨S_, .i32⟩
  | 94 => ⟨S1, .i32⟩
  | 95 => ⟨S4x512x256, .f32⟩
  | 96 => ⟨S4x256x16, .f32⟩
  | 97 => ⟨S4x256x16, .f32⟩
  | 98 => ⟨S4x1x256, .f32⟩
  | 99 => ⟨S4x256, .f32⟩
  | 100 => ⟨S4x256x1, .f32⟩
  | 101 => ⟨S4x1x16, .f32⟩
  | 102 => ⟨S4x16, .f32⟩
  | 103 => ⟨S4x1x16, .f32⟩
  | 104 => ⟨S4x256x16, .f32⟩
  | 105 => ⟨S4x256x16, .f32⟩
  | 106 => ⟨S4x256x16, .f32⟩
  | 107 => ⟨S4x256x16, .f32⟩
  | 108 => ⟨S4x1x16, .f32⟩
  | 109 => ⟨S4x16, .f32⟩
  | 110 => ⟨S4x1x16, .f32⟩
  | 111 => ⟨S4x256x16, .f32⟩
  | 112 => ⟨S4x256x16, .f32⟩
  | 113 => ⟨S_, .f32⟩
  | 114 => ⟨S4x256, .f32⟩
  | 115 => ⟨S_, .i32⟩
  | 116 => ⟨S1, .i32⟩
  | 117 => ⟨S4x512x256, .f32⟩
  | 118 => ⟨S4x256x16, .f32⟩
  | 119 => ⟨S4x256x16, .f32⟩
  | 120 => ⟨S4x1x256, .f32⟩
  | 121 => ⟨S4x256, .f32⟩
  | 122 => ⟨S4x256x1, .f32⟩
  | 123 => ⟨S4x1x16, .f32⟩
  | 124 => ⟨S4x16, .f32⟩
  | 125 => ⟨S4x1x16, .f32⟩
  | 126 => ⟨S4x256x16, .f32⟩
  | 127 => ⟨S4x256x16, .f32⟩
  | _ => ⟨S4x512x256, .f32⟩

abbrev hbmTy0_28 (i : Nat) : BufTy := match i % 128 with
  | 0 => ⟨S4x256x16, .f32⟩
  | 1 => ⟨S4x256x16, .f32⟩
  | 2 => ⟨S4x1x16, .f32⟩
  | 3 => ⟨S4x16, .f32⟩
  | 4 => ⟨S4x1x16, .f32⟩
  | 5 => ⟨S4x256x16, .f32⟩
  | 6 => ⟨S4x256x16, .f32⟩
  | 7 => ⟨S_, .f32⟩
  | 8 => ⟨S4x256, .f32⟩
  | 9 => ⟨S_, .i32⟩
  | 10 => ⟨S1, .i32⟩
  | 11 => ⟨S4x512x256, .f32⟩
  | 12 => ⟨S4x256x16, .f32⟩
  | 13 => ⟨S4x256x16, .f32⟩
  | 14 => ⟨S4x1x256, .f32⟩
  | 15 => ⟨S4x256, .f32⟩
  | 16 => ⟨S4x256x1, .f32⟩
  | 17 => ⟨S4x1x16, .f32⟩
  | 18 => ⟨S4x16, .f32⟩
  | 19 => ⟨S4x1x16, .f32⟩
  | 20 => ⟨S4x256x16, .f32⟩
  | 21 => ⟨S4x256x16, .f32⟩
  | 22 => ⟨S4x256x16, .f32⟩
  | 23 => ⟨S4x256x16, .f32⟩
  | 24 => ⟨S4x1x16, .f32⟩
  | 25 => ⟨S4x16, .f32⟩
  | 26 => ⟨S4x1x16, .f32⟩
  | 27 => ⟨S4x256x16, .f32⟩
  | 28 => ⟨S4x256x16, .f32⟩
  | 29 => ⟨S_, .f32⟩
  | 30 => ⟨S4x256, .f32⟩
  | 31 => ⟨S_, .i32⟩
  | 32 => ⟨S1, .i32⟩
  | 33 => ⟨S4x512x256, .f32⟩
  | 34 => ⟨S4x256x16, .f32⟩
  | 35 => ⟨S4x256x16, .f32⟩
  | 36 => ⟨S4x1x256, .f32⟩
  | 37 => ⟨S4x256, .f32⟩
  | 38 => ⟨S4x256x1, .f32⟩
  | 39 => ⟨S4x1x16, .f32⟩
  | 40 => ⟨S4x16, .f32⟩
  | 41 => ⟨S4x1x16, .f32⟩
  | 42 => ⟨S4x256x16, .f32⟩
  | 43 => ⟨S4x256x16, .f32⟩
  | 44 => ⟨S4x256x16, .f32⟩
  | 45 => ⟨S4x256x16, .f32⟩
  | 46 => ⟨S4x1x16, .f32⟩
  | 47 => ⟨S4x16, .f32⟩
  | 48 => ⟨S4x1x16, .f32⟩
  | 49 => ⟨S4x256x16, .f32⟩
  | 50 => ⟨S4x256x16, .f32⟩
  | 51 => ⟨S_, .f32⟩
  | 52 => ⟨S4x256, .f32⟩
  | 53 => ⟨S_, .i32⟩
  | 54 => ⟨S1, .i32⟩
  | 55 => ⟨S4x512x256, .f32⟩
  | 56 => ⟨S4x256x16, .f32⟩
  | 57 => ⟨S4x256x16, .f32⟩
  | 58 => ⟨S4x1x256, .f32⟩
  | 59 => ⟨S4x256, .f32⟩
  | 60 => ⟨S4x256x1, .f32⟩
  | 61 => ⟨S4x1x16, .f32⟩
  | 62 => ⟨S4x16, .f32⟩
  | 63 => ⟨S4x1x16, .f32⟩
  | 64 => ⟨S4x256x16, .f32⟩
  | 65 => ⟨S4x256x16, .f32⟩
  | 66 => ⟨S4x256x16, .f32⟩
  | 67 => ⟨S4x256x16, .f32⟩
  | 68 => ⟨S4x1x16, .f32⟩
  | 69 => ⟨S4x16, .f32⟩
  | 70 => ⟨S4x1x16, .f32⟩
  | 71 => ⟨S4x256x16, .f32⟩
  | 72 => ⟨S4x256x16, .f32⟩
  | 73 => ⟨S_, .f32⟩
  | 74 => ⟨S4x256, .f32⟩
  | 75 => ⟨S_, .i32⟩
  | 76 => ⟨S1, .i32⟩
  | 77 => ⟨S4x512x256, .f32⟩
  | 78 => ⟨S4x256x16, .f32⟩
  | 79 => ⟨S4x256x16, .f32⟩
  | 80 => ⟨S4x1x256, .f32⟩
  | 81 => ⟨S4x256, .f32⟩
  | 82 => ⟨S4x256x1, .f32⟩
  | 83 => ⟨S4x1x16, .f32⟩
  | 84 => ⟨S4x16, .f32⟩
  | 85 => ⟨S4x1x16, .f32⟩
  | 86 => ⟨S4x256x16, .f32⟩
  | 87 => ⟨S4x256x16, .f32⟩
  | 88 => ⟨S4x256x16, .f32⟩
  | 89 => ⟨S4x256x16, .f32⟩
  | 90 => ⟨S4x1x16, .f32⟩
  | 91 => ⟨S4x16, .f32⟩
  | 92 => ⟨S4x1x16, .f32⟩
  | 93 => ⟨S4x256x16, .f32⟩
  | 94 => ⟨S4x256x16, .f32⟩
  | 95 => ⟨S_, .f32⟩
  | 96 => ⟨S4x256, .f32⟩
  | 97 => ⟨S_, .i32⟩
  | 98 => ⟨S1, .i32⟩
  | 99 => ⟨S4x512x256, .f32⟩
  | 100 => ⟨S4x256x16, .f32⟩
  | 101 => ⟨S4x256x16, .f32⟩
  | 102 => ⟨S4x1x256, .f32⟩
  | 103 => ⟨S4x256, .f32⟩
  | 104 => ⟨S4x256x1, .f32⟩
  | 105 => ⟨S4x1x16, .f32⟩
  | 106 => ⟨S4x16, .f32⟩
  | 107 => ⟨S4x1x16, .f32⟩
  | 108 => ⟨S4x256x16, .f32⟩
  | 109 => ⟨S4x256x16, .f32⟩
  | 110 => ⟨S4x256x16, .f32⟩
  | 111 => ⟨S4x256x16, .f32⟩
  | 112 => ⟨S4x1x16, .f32⟩
  | 113 => ⟨S4x16, .f32⟩
  | 114 => ⟨S4x1x16, .f32⟩
  | 115 => ⟨S4x256x16, .f32⟩
  | 116 => ⟨S4x256x16, .f32⟩
  | 117 => ⟨S_, .f32⟩
  | 118 => ⟨S4x256, .f32⟩
  | 119 => ⟨S_, .i32⟩
  | 120 => ⟨S1, .i32⟩
  | 121 => ⟨S4x512x256, .f32⟩
  | 122 => ⟨S4x256x16, .f32⟩
  | 123 => ⟨S4x256x16, .f32⟩
  | 124 => ⟨S4x1x256, .f32⟩
  | 125 => ⟨S4x256, .f32⟩
  | 126 => ⟨S4x256x1, .f32⟩
  | 127 => ⟨S4x1x16, .f32⟩
  | _ => ⟨S4x512x256, .f32⟩

abbrev hbmTy0_29 (i : Nat) : BufTy := match i % 128 with
  | 0 => ⟨S4x16, .f32⟩
  | 1 => ⟨S4x1x16, .f32⟩
  | 2 => ⟨S4x256x16, .f32⟩
  | 3 => ⟨S4x256x16, .f32⟩
  | 4 => ⟨S4x256x16, .f32⟩
  | 5 => ⟨S4x256x16, .f32⟩
  | 6 => ⟨S4x1x16, .f32⟩
  | 7 => ⟨S4x16, .f32⟩
  | 8 => ⟨S4x1x16, .f32⟩
  | 9 => ⟨S4x256x16, .f32⟩
  | 10 => ⟨S4x256x16, .f32⟩
  | 11 => ⟨S_, .f32⟩
  | 12 => ⟨S4x256, .f32⟩
  | 13 => ⟨S_, .i32⟩
  | 14 => ⟨S1, .i32⟩
  | 15 => ⟨S4x512x256, .f32⟩
  | 16 => ⟨S4x256x16, .f32⟩
  | 17 => ⟨S4x256x16, .f32⟩
  | 18 => ⟨S4x1x256, .f32⟩
  | 19 => ⟨S4x256, .f32⟩
  | 20 => ⟨S4x256x1, .f32⟩
  | 21 => ⟨S4x1x16, .f32⟩
  | 22 => ⟨S4x16, .f32⟩
  | 23 => ⟨S4x1x16, .f32⟩
  | 24 => ⟨S4x256x16, .f32⟩
  | 25 => ⟨S4x256x16, .f32⟩
  | 26 => ⟨S4x256x16, .f32⟩
  | 27 => ⟨S4x256x16, .f32⟩
  | 28 => ⟨S4x1x16, .f32⟩
  | 29 => ⟨S4x16, .f32⟩
  | 30 => ⟨S4x1x16, .f32⟩
  | 31 => ⟨S4x256x16, .f32⟩
  | 32 => ⟨S4x256x16, .f32⟩
  | 33 => ⟨S_, .f32⟩
  | 34 => ⟨S4x256, .f32⟩
  | 35 => ⟨S_, .i32⟩
  | 36 => ⟨S1, .i32⟩
  | 37 => ⟨S4x512x256, .f32⟩
  | 38 => ⟨S4x256x16, .f32⟩
  | 39 => ⟨S4x256x16, .f32⟩
  | 40 => ⟨S4x1x256, .f32⟩
  | 41 => ⟨S4x256, .f32⟩
  | 42 => ⟨S4x256x1, .f32⟩
  | 43 => ⟨S4x1x16, .f32⟩
  | 44 => ⟨S4x16, .f32⟩
  | 45 => ⟨S4x1x16, .f32⟩
  | 46 => ⟨S4x256x16, .f32⟩
  | 47 => ⟨S4x256x16, .f32⟩
  | 48 => ⟨S4x256x16, .f32⟩
  | 49 => ⟨S4x256x16, .f32⟩
  | 50 => ⟨S4x1x16, .f32⟩
  | 51 => ⟨S4x16, .f32⟩
  | 52 => ⟨S4x1x16, .f32⟩
  | 53 => ⟨S4x256x16, .f32⟩
  | 54 => ⟨S4x256x16, .f32⟩
  | 55 => ⟨S_, .f32⟩
  | 56 => ⟨S4x256, .f32⟩
  | 57 => ⟨S_, .i32⟩
  | 58 => ⟨S1, .i32⟩
  | 59 => ⟨S4x512x256, .f32⟩
  | 60 => ⟨S4x256x16, .f32⟩
  | 61 => ⟨S4x256x16, .f32⟩
  | 62 => ⟨S4x1x256, .f32⟩
  | 63 => ⟨S4x256, .f32⟩
  | 64 => ⟨S4x256x1, .f32⟩
  | 65 => ⟨S4x1x16, .f32⟩
  | 66 => ⟨S4x16, .f32⟩
  | 67 => ⟨S4x1x16, .f32⟩
  | 68 => ⟨S4x256x16, .f32⟩
  | 69 => ⟨S4x256x16, .f32⟩
  | 70 => ⟨S4x256x16, .f32⟩
  | 71 => ⟨S4x256x16, .f32⟩
  | 72 => ⟨S4x1x16, .f32⟩
  | 73 => ⟨S4x16, .f32⟩
  | 74 => ⟨S4x1x16, .f32⟩
  | 75 => ⟨S4x256x16, .f32⟩
  | 76 => ⟨S4x256x16, .f32⟩
  | 77 => ⟨S_, .f32⟩
  | 78 => ⟨S4x256, .f32⟩
  | 79 => ⟨S_, .i32⟩
  | 80 => ⟨S1, .i32⟩
  | 81 => ⟨S4x512x256, .f32⟩
  | 82 => ⟨S4x256x16, .f32⟩
  | 83 => ⟨S4x256x16, .f32⟩
  | 84 => ⟨S4x1x256, .f32⟩
  | 85 => ⟨S4x256, .f32⟩
  | 86 => ⟨S4x256x1, .f32⟩
  | 87 => ⟨S4x1x16, .f32⟩
  | 88 => ⟨S4x16, .f32⟩
  | 89 => ⟨S4x1x16, .f32⟩
  | 90 => ⟨S4x256x16, .f32⟩
  | 91 => ⟨S4x256x16, .f32⟩
  | 92 => ⟨S4x256x16, .f32⟩
  | 93 => ⟨S4x256x16, .f32⟩
  | 94 => ⟨S4x1x16, .f32⟩
  | 95 => ⟨S4x16, .f32⟩
  | 96 => ⟨S4x1x16, .f32⟩
  | 97 => ⟨S4x256x16, .f32⟩
  | 98 => ⟨S4x256x16, .f32⟩
  | 99 => ⟨S_, .f32⟩
  | 100 => ⟨S4x256, .f32⟩
  | 101 => ⟨S_, .i32⟩
  | 102 => ⟨S1, .i32⟩
  | 103 => ⟨S4x512x256, .f32⟩
  | 104 => ⟨S4x256x16, .f32⟩
  | 105 => ⟨S4x256x16, .f32⟩
  | 106 => ⟨S4x1x256, .f32⟩
  | 107 => ⟨S4x256, .f32⟩
  | 108 => ⟨S4x256x1, .f32⟩
  | 109 => ⟨S4x1x16, .f32⟩
  | 110 => ⟨S4x16, .f32⟩
  | 111 => ⟨S4x1x16, .f32⟩
  | 112 => ⟨S4x256x16, .f32⟩
  | 113 => ⟨S4x256x16, .f32⟩
  | 114 => ⟨S4x256x16, .f32⟩
  | 115 => ⟨S4x256x16, .f32⟩
  | 116 => ⟨S4x1x16, .f32⟩
  | 117 => ⟨S4x16, .f32⟩
  | 118 => ⟨S4x1x16, .f32⟩
  | 119 => ⟨S4x256x16, .f32⟩
  | 120 => ⟨S4x256x16, .f32⟩
  | 121 => ⟨S_, .f32⟩
  | 122 => ⟨S4x256, .f32⟩
  | 123 => ⟨S_, .i32⟩
  | 124 => ⟨S1, .i32⟩
  | 125 => ⟨S4x512x256, .f32⟩
  | 126 => ⟨S4x256x16, .f32⟩
  | 127 => ⟨S4x256x16, .f32⟩
  | _ => ⟨S4x512x256, .f32⟩

abbrev hbmTy0_30 (i : Nat) : BufTy := match i % 128 with
  | 0 => ⟨S4x1x256, .f32⟩
  | 1 => ⟨S4x256, .f32⟩
  | 2 => ⟨S4x256x1, .f32⟩
  | 3 => ⟨S4x1x16, .f32⟩
  | 4 => ⟨S4x16, .f32⟩
  | 5 => ⟨S4x1x16, .f32⟩
  | 6 => ⟨S4x256x16, .f32⟩
  | 7 => ⟨S4x256x16, .f32⟩
  | 8 => ⟨S4x256x16, .f32⟩
  | 9 => ⟨S4x256x16, .f32⟩
  | 10 => ⟨S4x1x16, .f32⟩
  | 11 => ⟨S4x16, .f32⟩
  | 12 => ⟨S4x1x16, .f32⟩
  | 13 => ⟨S4x256x16, .f32⟩
  | 14 => ⟨S4x256x16, .f32⟩
  | 15 => ⟨S_, .f32⟩
  | 16 => ⟨S4x256, .f32⟩
  | 17 => ⟨S_, .i32⟩
  | 18 => ⟨S1, .i32⟩
  | 19 => ⟨S4x512x256, .f32⟩
  | 20 => ⟨S4x256x16, .f32⟩
  | 21 => ⟨S4x256x16, .f32⟩
  | 22 => ⟨S4x1x256, .f32⟩
  | 23 => ⟨S4x256, .f32⟩
  | 24 => ⟨S4x256x1, .f32⟩
  | 25 => ⟨S4x1x16, .f32⟩
  | 26 => ⟨S4x16, .f32⟩
  | 27 => ⟨S4x1x16, .f32⟩
  | 28 => ⟨S4x256x16, .f32⟩
  | 29 => ⟨S4x256x16, .f32⟩
  | 30 => ⟨S4x256x16, .f32⟩
  | 31 => ⟨S4x256x16, .f32⟩
  | 32 => ⟨S4x1x16, .f32⟩
  | 33 => ⟨S4x16, .f32⟩
  | 34 => ⟨S4x1x16, .f32⟩
  | 35 => ⟨S4x256x16, .f32⟩
  | 36 => ⟨S4x256x16, .f32⟩
  | 37 => ⟨S_, .f32⟩
  | 38 => ⟨S4x256, .f32⟩
  | 39 => ⟨S_, .i32⟩
  | 40 => ⟨S1, .i32⟩
  | 41 => ⟨S4x512x256, .f32⟩
  | 42 => ⟨S4x256x16, .f32⟩
  | 43 => ⟨S4x256x16, .f32⟩
  | 44 => ⟨S4x1x256, .f32⟩
  | 45 => ⟨S4x256, .f32⟩
  | 46 => ⟨S4x256x1, .f32⟩
  | 47 => ⟨S4x1x16, .f32⟩
  | 48 => ⟨S4x16, .f32⟩
  | 49 => ⟨S4x1x16, .f32⟩
  | 50 => ⟨S4x256x16, .f32⟩
  | 51 => ⟨S4x256x16, .f32⟩
  | 52 => ⟨S4x256x16, .f32⟩
  | 53 => ⟨S4x256x16, .f32⟩
  | 54 => ⟨S4x1x16, .f32⟩
  | 55 => ⟨S4x16, .f32⟩
  | 56 => ⟨S4x1x16, .f32⟩
  | 57 => ⟨S4x256x16, .f32⟩
  | 58 => ⟨S4x256x16, .f32⟩
  | 59 => ⟨S_, .f32⟩
  | 60 => ⟨S4x256, .f32⟩
  | 61 => ⟨S_, .i32⟩
  | 62 => ⟨S1, .i32⟩
  | 63 => ⟨S4x512x256, .f32⟩
  | 64 => ⟨S4x256x16, .f32⟩
  | 65 => ⟨S4x256x16, .f32⟩
  | 66 => ⟨S4x1x256, .f32⟩
  | 67 => ⟨S4x256, .f32⟩
  | 68 => ⟨S4x256x1, .f32⟩
  | 69 => ⟨S4x1x16, .f32⟩
  | 70 => ⟨S4x16, .f32⟩
  | 71 => ⟨S4x1x16, .f32⟩
  | 72 => ⟨S4x256x16, .f32⟩
  | 73 => ⟨S4x256x16, .f32⟩
  | 74 => ⟨S4x256x16, .f32⟩
  | 75 => ⟨S4x256x16, .f32⟩
  | 76 => ⟨S4x1x16, .f32⟩
  | 77 => ⟨S4x16, .f32⟩
  | 78 => ⟨S4x1x16, .f32⟩
  | 79 => ⟨S4x256x16, .f32⟩
  | 80 => ⟨S4x256x16, .f32⟩
  | 81 => ⟨S_, .f32⟩
  | 82 => ⟨S4x256, .f32⟩
  | 83 => ⟨S_, .i32⟩
  | 84 => ⟨S1, .i32⟩
  | 85 => ⟨S4x512x256, .f32⟩
  | 86 => ⟨S4x256x16, .f32⟩
  | 87 => ⟨S4x256x16, .f32⟩
  | 88 => ⟨S4x1x256, .f32⟩
  | 89 => ⟨S4x256, .f32⟩
  | 90 => ⟨S4x256x1, .f32⟩
  | 91 => ⟨S4x1x16, .f32⟩
  | 92 => ⟨S4x16, .f32⟩
  | 93 => ⟨S4x1x16, .f32⟩
  | 94 => ⟨S4x256x16, .f32⟩
  | 95 => ⟨S4x256x16, .f32⟩
  | 96 => ⟨S4x256x16, .f32⟩
  | 97 => ⟨S4x256x16, .f32⟩
  | 98 => ⟨S4x1x16, .f32⟩
  | 99 => ⟨S4x16, .f32⟩
  | 100 => ⟨S4x1x16, .f32⟩
  | 101 => ⟨S4x256x16, .f32⟩
  | 102 => ⟨S4x256x16, .f32⟩
  | 103 => ⟨S_, .f32⟩
  | 104 => ⟨S4x256, .f32⟩
  | 105 => ⟨S_, .i32⟩
  | 106 => ⟨S1, .i32⟩
  | 107 => ⟨S4x512x256, .f32⟩
  | 108 => ⟨S4x256x16, .f32⟩
  | 109 => ⟨S4x256x16, .f32⟩
  | 110 => ⟨S4x1x256, .f32⟩
  | 111 => ⟨S4x256, .f32⟩
  | 112 => ⟨S4x256x1, .f32⟩
  | 113 => ⟨S4x1x16, .f32⟩
  | 114 => ⟨S4x16, .f32⟩
  | 115 => ⟨S4x1x16, .f32⟩
  | 116 => ⟨S4x256x16, .f32⟩
  | 117 => ⟨S4x256x16, .f32⟩
  | 118 => ⟨S4x256x16, .f32⟩
  | 119 => ⟨S4x256x16, .f32⟩
  | 120 => ⟨S4x1x16, .f32⟩
  | 121 => ⟨S4x16, .f32⟩
  | 122 => ⟨S4x1x16, .f32⟩
  | 123 => ⟨S4x256x16, .f32⟩
  | 124 => ⟨S4x256x16, .f32⟩
  | 125 => ⟨S_, .f32⟩
  | 126 => ⟨S4x256, .f32⟩
  | 127 => ⟨S_, .i32⟩
  | _ => ⟨S4x512x256, .f32⟩

abbrev hbmTy0_31 (i : Nat) : BufTy := match i % 128 with
  | 0 => ⟨S1, .i32⟩
  | 1 => ⟨S4x512x256, .f32⟩
  | 2 => ⟨S4x256x16, .f32⟩
  | 3 => ⟨S4x256x16, .f32⟩
  | 4 => ⟨S4x1x256, .f32⟩
  | 5 => ⟨S4x256, .f32⟩
  | 6 => ⟨S4x256x1, .f32⟩
  | 7 => ⟨S4x1x16, .f32⟩
  | 8 => ⟨S4x16, .f32⟩
  | 9 => ⟨S4x1x16, .f32⟩
  | 10 => ⟨S4x256x16, .f32⟩
  | 11 => ⟨S4x256x16, .f32⟩
  | 12 => ⟨S4x256x16, .f32⟩
  | 13 => ⟨S4x256x16, .f32⟩
  | 14 => ⟨S4x1x16, .f32⟩
  | 15 => ⟨S4x16, .f32⟩
  | 16 => ⟨S4x1x16, .f32⟩
  | 17 => ⟨S4x256x16, .f32⟩
  | 18 => ⟨S4x256x16, .f32⟩
  | 19 => ⟨S_, .f32⟩
  | 20 => ⟨S4x256, .f32⟩
  | 21 => ⟨S_, .i32⟩
  | 22 => ⟨S1, .i32⟩
  | 23 => ⟨S4x512x256, .f32⟩
  | 24 => ⟨S4x256x16, .f32⟩
  | 25 => ⟨S4x256x16, .f32⟩
  | 26 => ⟨S4x1x256, .f32⟩
  | 27 => ⟨S4x256, .f32⟩
  | 28 => ⟨S4x256x1, .f32⟩
  | 29 => ⟨S4x1x16, .f32⟩
  | 30 => ⟨S4x16, .f32⟩
  | 31 => ⟨S4x1x16, .f32⟩
  | 32 => ⟨S4x256x16, .f32⟩
  | 33 => ⟨S4x256x16, .f32⟩
  | 34 => ⟨S4x256x16, .f32⟩
  | 35 => ⟨S4x256x16, .f32⟩
  | 36 => ⟨S4x1x16, .f32⟩
  | 37 => ⟨S4x16, .f32⟩
  | 38 => ⟨S4x1x16, .f32⟩
  | 39 => ⟨S4x256x16, .f32⟩
  | 40 => ⟨S4x256x16, .f32⟩
  | 41 => ⟨S_, .f32⟩
  | 42 => ⟨S4x256, .f32⟩
  | 43 => ⟨S_, .i32⟩
  | 44 => ⟨S1, .i32⟩
  | 45 => ⟨S4x512x256, .f32⟩
  | 46 => ⟨S4x256x16, .f32⟩
  | 47 => ⟨S4x256x16, .f32⟩
  | 48 => ⟨S4x1x256, .f32⟩
  | 49 => ⟨S4x256, .f32⟩
  | 50 => ⟨S4x256x1, .f32⟩
  | 51 => ⟨S4x1x16, .f32⟩
  | 52 => ⟨S4x16, .f32⟩
  | 53 => ⟨S4x1x16, .f32⟩
  | 54 => ⟨S4x256x16, .f32⟩
  | 55 => ⟨S4x256x16, .f32⟩
  | 56 => ⟨S4x256x16, .f32⟩
  | 57 => ⟨S4x256x16, .f32⟩
  | 58 => ⟨S4x1x16, .f32⟩
  | 59 => ⟨S4x16, .f32⟩
  | 60 => ⟨S4x1x16, .f32⟩
  | 61 => ⟨S4x256x16, .f32⟩
  | 62 => ⟨S4x256x16, .f32⟩
  | 63 => ⟨S_, .f32⟩
  | 64 => ⟨S4x256, .f32⟩
  | 65 => ⟨S_, .i32⟩
  | 66 => ⟨S1, .i32⟩
  | 67 => ⟨S4x512x256, .f32⟩
  | 68 => ⟨S4x256x16, .f32⟩
  | 69 => ⟨S4x256x16, .f32⟩
  | 70 => ⟨S4x1x256, .f32⟩
  | 71 => ⟨S4x256, .f32⟩
  | 72 => ⟨S4x256x1, .f32⟩
  | 73 => ⟨S4x1x16, .f32⟩
  | 74 => ⟨S4x16, .f32⟩
  | 75 => ⟨S4x1x16, .f32⟩
  | 76 => ⟨S4x256x16, .f32⟩
  | 77 => ⟨S4x256x16, .f32⟩
  | 78 => ⟨S4x256x16, .f32⟩
  | 79 => ⟨S4x256x16, .f32⟩
  | 80 => ⟨S4x1x16, .f32⟩
  | 81 => ⟨S4x16, .f32⟩
  | 82 => ⟨S4x1x16, .f32⟩
  | 83 => ⟨S4x256x16, .f32⟩
  | 84 => ⟨S4x256x16, .f32⟩
  | 85 => ⟨S_, .f32⟩
  | 86 => ⟨S4x256, .f32⟩
  | 87 => ⟨S_, .i32⟩
  | 88 => ⟨S1, .i32⟩
  | 89 => ⟨S4x512x256, .f32⟩
  | 90 => ⟨S4x256x16, .f32⟩
  | 91 => ⟨S4x256x16, .f32⟩
  | 92 => ⟨S4x1x256, .f32⟩
  | 93 => ⟨S4x256, .f32⟩
  | 94 => ⟨S4x256x1, .f32⟩
  | 95 => ⟨S4x1x16, .f32⟩
  | 96 => ⟨S4x16, .f32⟩
  | 97 => ⟨S4x1x16, .f32⟩
  | 98 => ⟨S4x256x16, .f32⟩
  | 99 => ⟨S4x256x16, .f32⟩
  | 100 => ⟨S4x256x16, .f32⟩
  | 101 => ⟨S4x256x16, .f32⟩
  | 102 => ⟨S4x1x16, .f32⟩
  | 103 => ⟨S4x16, .f32⟩
  | 104 => ⟨S4x1x16, .f32⟩
  | 105 => ⟨S4x256x16, .f32⟩
  | 106 => ⟨S4x256x16, .f32⟩
  | 107 => ⟨S_, .f32⟩
  | 108 => ⟨S4x256, .f32⟩
  | 109 => ⟨S_, .i32⟩
  | 110 => ⟨S1, .i32⟩
  | 111 => ⟨S4x512x256, .f32⟩
  | 112 => ⟨S4x256x16, .f32⟩
  | 113 => ⟨S4x256x16, .f32⟩
  | 114 => ⟨S4x1x256, .f32⟩
  | 115 => ⟨S4x256, .f32⟩
  | 116 => ⟨S4x256x1, .f32⟩
  | 117 => ⟨S4x1x16, .f32⟩
  | 118 => ⟨S4x16, .f32⟩
  | 119 => ⟨S4x1x16, .f32⟩
  | 120 => ⟨S4x256x16, .f32⟩
  | 121 => ⟨S4x256x16, .f32⟩
  | 122 => ⟨S4x256x16, .f32⟩
  | 123 => ⟨S4x256x16, .f32⟩
  | 124 => ⟨S4x1x16, .f32⟩
  | 125 => ⟨S4x16, .f32⟩
  | 126 => ⟨S4x1x16, .f32⟩
  | 127 => ⟨S4x256x16, .f32⟩
  | _ => ⟨S4x512x256, .f32⟩

abbrev hbmTy0_32 (i : Nat) : BufTy := match i % 128 with
  | 0 => ⟨S4x256x16, .f32⟩
  | 1 => ⟨S_, .f32⟩
  | 2 => ⟨S4x256, .f32⟩
  | 3 => ⟨S_, .i32⟩
  | 4 => ⟨S1, .i32⟩
  | 5 => ⟨S4x512x256, .f32⟩
  | 6 => ⟨S4x256x16, .f32⟩
  | 7 => ⟨S4x256x16, .f32⟩
  | 8 => ⟨S4x1x256, .f32⟩
  | 9 => ⟨S4x256, .f32⟩
  | 10 => ⟨S4x256x1, .f32⟩
  | 11 => ⟨S4x1x16, .f32⟩
  | 12 => ⟨S4x16, .f32⟩
  | 13 => ⟨S4x1x16, .f32⟩
  | 14 => ⟨S4x256x16, .f32⟩
  | 15 => ⟨S4x256x16, .f32⟩
  | 16 => ⟨S4x256x16, .f32⟩
  | 17 => ⟨S4x256x16, .f32⟩
  | 18 => ⟨S4x1x16, .f32⟩
  | 19 => ⟨S4x16, .f32⟩
  | 20 => ⟨S4x1x16, .f32⟩
  | 21 => ⟨S4x256x16, .f32⟩
  | 22 => ⟨S4x256x16, .f32⟩
  | 23 => ⟨S_, .f32⟩
  | 24 => ⟨S4x256, .f32⟩
  | 25 => ⟨S_, .i32⟩
  | 26 => ⟨S1, .i32⟩
  | 27 => ⟨S4x512x256, .f32⟩
  | 28 => ⟨S4x256x16, .f32⟩
  | 29 => ⟨S4x256x16, .f32⟩
  | 30 => ⟨S4x1x256, .f32⟩
  | 31 => ⟨S4x256, .f32⟩
  | 32 => ⟨S4x256x1, .f32⟩
  | 33 => ⟨S4x1x16, .f32⟩
  | 34 => ⟨S4x16, .f32⟩
  | 35 => ⟨S4x1x16, .f32⟩
  | 36 => ⟨S4x256x16, .f32⟩
  | 37 => ⟨S4x256x16, .f32⟩
  | 38 => ⟨S4x256x16, .f32⟩
  | 39 => ⟨S4x256x16, .f32⟩
  | 40 => ⟨S4x1x16, .f32⟩
  | 41 => ⟨S4x16, .f32⟩
  | 42 => ⟨S4x1x16, .f32⟩
  | 43 => ⟨S4x256x16, .f32⟩
  | 44 => ⟨S4x256x16, .f32⟩
  | 45 => ⟨S_, .f32⟩
  | 46 => ⟨S4x256, .f32⟩
  | 47 => ⟨S_, .i32⟩
  | 48 => ⟨S1, .i32⟩
  | 49 => ⟨S4x512x256, .f32⟩
  | 50 => ⟨S4x256x16, .f32⟩
  | 51 => ⟨S4x256x16, .f32⟩
  | 52 => ⟨S4x1x256, .f32⟩
  | 53 => ⟨S4x256, .f32⟩
  | 54 => ⟨S4x256x1, .f32⟩
  | 55 => ⟨S4x1x16, .f32⟩
  | 56 => ⟨S4x16, .f32⟩
  | 57 => ⟨S4x1x16, .f32⟩
  | 58 => ⟨S4x256x16, .f32⟩
  | 59 => ⟨S4x256x16, .f32⟩
  | 60 => ⟨S4x256x16, .f32⟩
  | 61 => ⟨S4x256x16, .f32⟩
  | 62 => ⟨S4x1x16, .f32⟩
  | 63 => ⟨S4x16, .f32⟩
  | 64 => ⟨S4x1x16, .f32⟩
  | 65 => ⟨S4x256x16, .f32⟩
  | 66 => ⟨S4x256x16, .f32⟩
  | 67 => ⟨S_, .f32⟩
  | 68 => ⟨S4x256, .f32⟩
  | 69 => ⟨S_, .i32⟩
  | 70 => ⟨S1, .i32⟩
  | 71 => ⟨S4x512x256, .f32⟩
  | 72 => ⟨S4x256x16, .f32⟩
  | 73 => ⟨S4x256x16, .f32⟩
  | 74 => ⟨S4x1x256, .f32⟩
  | 75 => ⟨S4x256, .f32⟩
  | 76 => ⟨S4x256x1, .f32⟩
  | 77 => ⟨S4x1x16, .f32⟩
  | 78 => ⟨S4x16, .f32⟩
  | 79 => ⟨S4x1x16, .f32⟩
  | 80 => ⟨S4x256x16, .f32⟩
  | 81 => ⟨S4x256x16, .f32⟩
  | 82 => ⟨S4x256x16, .f32⟩
  | 83 => ⟨S4x256x16, .f32⟩
  | 84 => ⟨S4x1x16, .f32⟩
  | 85 => ⟨S4x16, .f32⟩
  | 86 => ⟨S4x1x16, .f32⟩
  | 87 => ⟨S4x256x16, .f32⟩
  | 88 => ⟨S4x256x16, .f32⟩
  | 89 => ⟨S_, .f32⟩
  | 90 => ⟨S4x256, .f32⟩
  | 91 => ⟨S_, .i32⟩
  | 92 => ⟨S1, .i32⟩
  | 93 => ⟨S4x512x256, .f32⟩
  | 94 => ⟨S4x256x16, .f32⟩
  | 95 => ⟨S4x256x16, .f32⟩
  | 96 => ⟨S4x1x256, .f32⟩
  | 97 => ⟨S4x256, .f32⟩
  | 98 => ⟨S4x256x1, .f32⟩
  | 99 => ⟨S4x1x16, .f32⟩
  | 100 => ⟨S4x16, .f32⟩
  | 101 => ⟨S4x1x16, .f32⟩
  | 102 => ⟨S4x256x16, .f32⟩
  | 103 => ⟨S4x256x16, .f32⟩
  | 104 => ⟨S4x256x16, .f32⟩
  | 105 => ⟨S4x256x16, .f32⟩
  | 106 => ⟨S4x1x16, .f32⟩
  | 107 => ⟨S4x16, .f32⟩
  | 108 => ⟨S4x1x16, .f32⟩
  | 109 => ⟨S4x256x16, .f32⟩
  | 110 => ⟨S4x256x16, .f32⟩
  | 111 => ⟨S_, .f32⟩
  | 112 => ⟨S4x256, .f32⟩
  | 113 => ⟨S_, .i32⟩
  | 114 => ⟨S1, .i32⟩
  | 115 => ⟨S4x512x256, .f32⟩
  | 116 => ⟨S4x256x16, .f32⟩
  | 117 => ⟨S4x256x16, .f32⟩
  | 118 => ⟨S4x1x256, .f32⟩
  | 119 => ⟨S4x256, .f32⟩
  | 120 => ⟨S4x256x1, .f32⟩
  | 121 => ⟨S4x1x16, .f32⟩
  | 122 => ⟨S4x16, .f32⟩
  | 123 => ⟨S4x1x16, .f32⟩
  | 124 => ⟨S4x256x16, .f32⟩
  | 125 => ⟨S4x256x16, .f32⟩
  | 126 => ⟨S4x256x16, .f32⟩
  | 127 => ⟨S4x256x16, .f32⟩
  | _ => ⟨S4x512x256, .f32⟩

abbrev hbmTy0_33 (i : Nat) : BufTy := match i % 128 with
  | 0 => ⟨S4x1x16, .f32⟩
  | 1 => ⟨S4x16, .f32⟩
  | 2 => ⟨S4x1x16, .f32⟩
  | 3 => ⟨S4x256x16, .f32⟩
  | 4 => ⟨S4x256x16, .f32⟩
  | 5 => ⟨S_, .f32⟩
  | 6 => ⟨S4x256, .f32⟩
  | 7 => ⟨S_, .i32⟩
  | 8 => ⟨S1, .i32⟩
  | 9 => ⟨S4x512x256, .f32⟩
  | 10 => ⟨S4x256x16, .f32⟩
  | 11 => ⟨S4x256x16, .f32⟩
  | 12 => ⟨S4x1x256, .f32⟩
  | 13 => ⟨S4x256, .f32⟩
  | 14 => ⟨S4x256x1, .f32⟩
  | 15 => ⟨S4x1x16, .f32⟩
  | 16 => ⟨S4x16, .f32⟩
  | 17 => ⟨S4x1x16, .f32⟩
  | 18 => ⟨S4x256x16, .f32⟩
  | 19 => ⟨S4x256x16, .f32⟩
  | 20 => ⟨S4x256x16, .f32⟩
  | 21 => ⟨S4x256x16, .f32⟩
  | 22 => ⟨S4x1x16, .f32⟩
  | 23 => ⟨S4x16, .f32⟩
  | 24 => ⟨S4x1x16, .f32⟩
  | 25 => ⟨S4x256x16, .f32⟩
  | 26 => ⟨S4x256x16, .f32⟩
  | 27 => ⟨S_, .f32⟩
  | 28 => ⟨S4x256, .f32⟩
  | 29 => ⟨S_, .i32⟩
  | 30 => ⟨S1, .i32⟩
  | 31 => ⟨S4x512x256, .f32⟩
  | 32 => ⟨S4x256x16, .f32⟩
  | 33 => ⟨S4x256x16, .f32⟩
  | 34 => ⟨S4x1x256, .f32⟩
  | 35 => ⟨S4x256, .f32⟩
  | 36 => ⟨S4x256x1, .f32⟩
  | 37 => ⟨S4x1x16, .f32⟩
  | 38 => ⟨S4x16, .f32⟩
  | 39 => ⟨S4x1x16, .f32⟩
  | 40 => ⟨S4x256x16, .f32⟩
  | 41 => ⟨S4x256x16, .f32⟩
  | 42 => ⟨S4x256x16, .f32⟩
  | 43 => ⟨S4x256x16, .f32⟩
  | 44 => ⟨S4x1x16, .f32⟩
  | 45 => ⟨S4x16, .f32⟩
  | 46 => ⟨S4x1x16, .f32⟩
  | 47 => ⟨S4x256x16, .f32⟩
  | 48 => ⟨S4x256x16, .f32⟩
  | 49 => ⟨S_, .f32⟩
  | 50 => ⟨S4x256, .f32⟩
  | 51 => ⟨S_, .i32⟩
  | 52 => ⟨S1, .i32⟩
  | 53 => ⟨S4x512x256, .f32⟩
  | 54 => ⟨S4x256x16, .f32⟩
  | 55 => ⟨S4x256x16, .f32⟩
  | 56 => ⟨S4x1x256, .f32⟩
  | 57 => ⟨S4x256, .f32⟩
  | 58 => ⟨S4x256x1, .f32⟩
  | 59 => ⟨S4x1x16, .f32⟩
  | 60 => ⟨S4x16, .f32⟩
  | 61 => ⟨S4x1x16, .f32⟩
  | 62 => ⟨S4x256x16, .f32⟩
  | 63 => ⟨S4x256x16, .f32⟩
  | 64 => ⟨S4x256x16, .f32⟩
  | 65 => ⟨S4x256x16, .f32⟩
  | 66 => ⟨S4x1x16, .f32⟩
  | 67 => ⟨S4x16, .f32⟩
  | 68 => ⟨S4x1x16, .f32⟩
  | 69 => ⟨S4x256x16, .f32⟩
  | 70 => ⟨S4x256x16, .f32⟩
  | 71 => ⟨S_, .f32⟩
  | 72 => ⟨S4x256, .f32⟩
  | 73 => ⟨S_, .i32⟩
  | 74 => ⟨S1, .i32⟩
  | 75 => ⟨S4x512x256, .f32⟩
  | 76 => ⟨S4x256x16, .f32⟩
  | 77 => ⟨S4x256x16, .f32⟩
  | 78 => ⟨S4x1x256, .f32⟩
  | 79 => ⟨S4x256, .f32⟩
  | 80 => ⟨S4x256x1, .f32⟩
  | 81 => ⟨S4x1x16, .f32⟩
  | 82 => ⟨S4x16, .f32⟩
  | 83 => ⟨S4x1x16, .f32⟩
  | 84 => ⟨S4x256x16, .f32⟩
  | 85 => ⟨S4x256x16, .f32⟩
  | 86 => ⟨S4x256x16, .f32⟩
  | 87 => ⟨S4x256x16, .f32⟩
  | 88 => ⟨S4x1x16, .f32⟩
  | 89 => ⟨S4x16, .f32⟩
  | 90 => ⟨S4x1x16, .f32⟩
  | 91 => ⟨S4x256x16, .f32⟩
  | 92 => ⟨S4x256x16, .f32⟩
  | 93 => ⟨S_, .f32⟩
  | 94 => ⟨S4x256, .f32⟩
  | 95 => ⟨S_, .i32⟩
  | 96 => ⟨S1, .i32⟩
  | 97 => ⟨S4x512x256, .f32⟩
  | 98 => ⟨S4x256x16, .f32⟩
  | 99 => ⟨S4x256x16, .f32⟩
  | 100 => ⟨S4x1x256, .f32⟩
  | 101 => ⟨S4x256, .f32⟩
  | 102 => ⟨S4x256x1, .f32⟩
  | 103 => ⟨S4x1x16, .f32⟩
  | 104 => ⟨S4x16, .f32⟩
  | 105 => ⟨S4x1x16, .f32⟩
  | 106 => ⟨S4x256x16, .f32⟩
  | 107 => ⟨S4x256x16, .f32⟩
  | 108 => ⟨S4x256x16, .f32⟩
  | 109 => ⟨S4x256x16, .f32⟩
  | 110 => ⟨S4x1x16, .f32⟩
  | 111 => ⟨S4x16, .f32⟩
  | 112 => ⟨S4x1x16, .f32⟩
  | 113 => ⟨S4x256x16, .f32⟩
  | 114 => ⟨S4x256x16, .f32⟩
  | 115 => ⟨S_, .f32⟩
  | 116 => ⟨S4x256, .f32⟩
  | 117 => ⟨S_, .i32⟩
  | 118 => ⟨S1, .i32⟩
  | 119 => ⟨S4x512x256, .f32⟩
  | 120 => ⟨S4x256x16, .f32⟩
  | 121 => ⟨S4x256x16, .f32⟩
  | 122 => ⟨S4x1x256, .f32⟩
  | 123 => ⟨S4x256, .f32⟩
  | 124 => ⟨S4x256x1, .f32⟩
  | 125 => ⟨S4x1x16, .f32⟩
  | 126 => ⟨S4x16, .f32⟩
  | 127 => ⟨S4x1x16, .f32⟩
  | _ => ⟨S4x512x256, .f32⟩

abbrev hbmTy0_34 (i : Nat) : BufTy := match i % 128 with
  | 0 => ⟨S4x256x16, .f32⟩
  | 1 => ⟨S4x256x16, .f32⟩
  | 2 => ⟨S4x256x16, .f32⟩
  | 3 => ⟨S4x256x16, .f32⟩
  | 4 => ⟨S4x1x16, .f32⟩
  | 5 => ⟨S4x16, .f32⟩
  | 6 => ⟨S4x1x16, .f32⟩
  | 7 => ⟨S4x256x16, .f32⟩
  | 8 => ⟨S4x256x16, .f32⟩
  | 9 => ⟨S_, .f32⟩
  | 10 => ⟨S4x256, .f32⟩
  | 11 => ⟨S_, .i32⟩
  | 12 => ⟨S1, .i32⟩
  | 13 => ⟨S4x512x256, .f32⟩
  | 14 => ⟨S4x256x16, .f32⟩
  | 15 => ⟨S4x256x16, .f32⟩
  | 16 => ⟨S4x1x256, .f32⟩
  | 17 => ⟨S4x256, .f32⟩
  | 18 => ⟨S4x256x1, .f32⟩
  | 19 => ⟨S4x1x16, .f32⟩
  | 20 => ⟨S4x16, .f32⟩
  | 21 => ⟨S4x1x16, .f32⟩
  | 22 => ⟨S4x256x16, .f32⟩
  | 23 => ⟨S4x256x16, .f32⟩
  | 24 => ⟨S4x256x16, .f32⟩
  | 25 => ⟨S4x256x16, .f32⟩
  | 26 => ⟨S4x1x16, .f32⟩
  | 27 => ⟨S4x16, .f32⟩
  | 28 => ⟨S4x1x16, .f32⟩
  | 29 => ⟨S4x256x16, .f32⟩
  | 30 => ⟨S4x256x16, .f32⟩
  | 31 => ⟨S_, .f32⟩
  | 32 => ⟨S4x256, .f32⟩
  | 33 => ⟨S_, .i32⟩
  | 34 => ⟨S1, .i32⟩
  | 35 => ⟨S4x512x256, .f32⟩
  | 36 => ⟨S4x256x16, .f32⟩
  | 37 => ⟨S4x256x16, .f32⟩
  | 38 => ⟨S4x1x256, .f32⟩
  | 39 => ⟨S4x256, .f32⟩
  | 40 => ⟨S4x256x1, .f32⟩
  | 41 => ⟨S4x1x16, .f32⟩
  | 42 => ⟨S4x16, .f32⟩
  | 43 => ⟨S4x1x16, .f32⟩
  | 44 => ⟨S4x256x16, .f32⟩
  | 45 => ⟨S4x256x16, .f32⟩
  | 46 => ⟨S4x256x16, .f32⟩
  | 47 => ⟨S4x256x16, .f32⟩
  | 48 => ⟨S4x1x16, .f32⟩
  | 49 => ⟨S4x16, .f32⟩
  | 50 => ⟨S4x1x16, .f32⟩
  | 51 => ⟨S4x256x16, .f32⟩
  | 52 => ⟨S4x256x16, .f32⟩
  | 53 => ⟨S_, .f32⟩
  | 54 => ⟨S4x256, .f32⟩
  | 55 => ⟨S_, .i32⟩
  | 56 => ⟨S1, .i32⟩
  | 57 => ⟨S4x512x256, .f32⟩
  | 58 => ⟨S4x256x16, .f32⟩
  | 59 => ⟨S4x256x16, .f32⟩
  | 60 => ⟨S4x1x256, .f32⟩
  | 61 => ⟨S4x256, .f32⟩
  | 62 => ⟨S4x256x1, .f32⟩
  | 63 => ⟨S4x1x16, .f32⟩
  | 64 => ⟨S4x16, .f32⟩
  | 65 => ⟨S4x1x16, .f32⟩
  | 66 => ⟨S4x256x16, .f32⟩
  | 67 => ⟨S4x256x16, .f32⟩
  | 68 => ⟨S4x256x16, .f32⟩
  | 69 => ⟨S4x256x16, .f32⟩
  | 70 => ⟨S4x1x16, .f32⟩
  | 71 => ⟨S4x16, .f32⟩
  | 72 => ⟨S4x1x16, .f32⟩
  | 73 => ⟨S4x256x16, .f32⟩
  | 74 => ⟨S4x256x16, .f32⟩
  | 75 => ⟨S_, .f32⟩
  | 76 => ⟨S4x256, .f32⟩
  | 77 => ⟨S_, .i32⟩
  | 78 => ⟨S1, .i32⟩
  | 79 => ⟨S4x512x256, .f32⟩
  | 80 => ⟨S4x256x16, .f32⟩
  | 81 => ⟨S4x256x16, .f32⟩
  | 82 => ⟨S4x1x256, .f32⟩
  | 83 => ⟨S4x256, .f32⟩
  | 84 => ⟨S4x256x1, .f32⟩
  | 85 => ⟨S4x1x16, .f32⟩
  | 86 => ⟨S4x16, .f32⟩
  | 87 => ⟨S4x1x16, .f32⟩
  | 88 => ⟨S4x256x16, .f32⟩
  | 89 => ⟨S4x256x16, .f32⟩
  | 90 => ⟨S4x256x16, .f32⟩
  | 91 => ⟨S4x256x16, .f32⟩
  | 92 => ⟨S4x1x16, .f32⟩
  | 93 => ⟨S4x16, .f32⟩
  | 94 => ⟨S4x1x16, .f32⟩
  | 95 => ⟨S4x256x16, .f32⟩
  | 96 => ⟨S4x256x16, .f32⟩
  | 97 => ⟨S_, .f32⟩
  | 98 => ⟨S4x256, .f32⟩
  | 99 => ⟨S_, .i32⟩
  | 100 => ⟨S1, .i32⟩
  | 101 => ⟨S4x512x256, .f32⟩
  | 102 => ⟨S4x256x16, .f32⟩
  | 103 => ⟨S4x256x16, .f32⟩
  | 104 => ⟨S4x1x256, .f32⟩
  | 105 => ⟨S4x256, .f32⟩
  | 106 => ⟨S4x256x1, .f32⟩
  | 107 => ⟨S4x1x16, .f32⟩
  | 108 => ⟨S4x16, .f32⟩
  | 109 => ⟨S4x1x16, .f32⟩
  | 110 => ⟨S4x256x16, .f32⟩
  | 111 => ⟨S4x256x16, .f32⟩
  | 112 => ⟨S4x256x16, .f32⟩
  | 113 => ⟨S4x256x16, .f32⟩
  | 114 => ⟨S4x1x16, .f32⟩
  | 115 => ⟨S4x16, .f32⟩
  | 116 => ⟨S4x1x16, .f32⟩
  | 117 => ⟨S4x256x16, .f32⟩
  | 118 => ⟨S4x256x16, .f32⟩
  | 119 => ⟨S_, .f32⟩
  | 120 => ⟨S4x256, .f32⟩
  | 121 => ⟨S_, .i32⟩
  | 122 => ⟨S1, .i32⟩
  | 123 => ⟨S4x512x256, .f32⟩
  | 124 => ⟨S4x256x16, .f32⟩
  | 125 => ⟨S4x256x16, .f32⟩
  | 126 => ⟨S4x1x256, .f32⟩
  | 127 => ⟨S4x256, .f32⟩
  | _ => ⟨S4x512x256, .f32⟩

abbrev hbmTy0_35 (i : Nat) : BufTy := match i % 128 with
  | 0 => ⟨S4x256x1, .f32⟩
  | 1 => ⟨S4x1x16, .f32⟩
  | 2 => ⟨S4x16, .f32⟩
  | 3 => ⟨S4x1x16, .f32⟩
  | 4 => ⟨S4x256x16, .f32⟩
  | 5 => ⟨S4x256x16, .f32⟩
  | 6 => ⟨S4x256x16, .f32⟩
  | 7 => ⟨S4x256x16, .f32⟩
  | 8 => ⟨S4x1x16, .f32⟩
  | 9 => ⟨S4x16, .f32⟩
  | 10 => ⟨S4x1x16, .f32⟩
  | 11 => ⟨S4x256x16, .f32⟩
  | 12 => ⟨S4x256x16, .f32⟩
  | 13 => ⟨S_, .f32⟩
  | 14 => ⟨S4x256, .f32⟩
  | 15 => ⟨S_, .i32⟩
  | 16 => ⟨S1, .i32⟩
  | 17 => ⟨S4x512x256, .f32⟩
  | 18 => ⟨S4x256x16, .f32⟩
  | 19 => ⟨S4x256x16, .f32⟩
  | 20 => ⟨S4x1x256, .f32⟩
  | 21 => ⟨S4x256, .f32⟩
  | 22 => ⟨S4x256x1, .f32⟩
  | 23 => ⟨S4x1x16, .f32⟩
  | 24 => ⟨S4x16, .f32⟩
  | 25 => ⟨S4x1x16, .f32⟩
  | 26 => ⟨S4x256x16, .f32⟩
  | 27 => ⟨S4x256x16, .f32⟩
  | 28 => ⟨S4x256x16, .f32⟩
  | 29 => ⟨S4x256x16, .f32⟩
  | 30 => ⟨S4x1x16, .f32⟩
  | 31 => ⟨S4x16, .f32⟩
  | 32 => ⟨S4x1x16, .f32⟩
  | 33 => ⟨S4x256x16, .f32⟩
  | 34 => ⟨S4x256x16, .f32⟩
  | 35 => ⟨S_, .f32⟩
  | 36 => ⟨S4x256, .f32⟩
  | 37 => ⟨S_, .i32⟩
  | 38 => ⟨S1, .i32⟩
  | 39 => ⟨S4x512x256, .f32⟩
  | 40 => ⟨S4x256x16, .f32⟩
  | 41 => ⟨S4x256x16, .f32⟩
  | 42 => ⟨S4x1x256, .f32⟩
  | 43 => ⟨S4x256, .f32⟩
  | 44 => ⟨S4x256x1, .f32⟩
  | 45 => ⟨S4x1x16, .f32⟩
  | 46 => ⟨S4x16, .f32⟩
  | 47 => ⟨S4x1x16, .f32⟩
  | 48 => ⟨S4x256x16, .f32⟩
  | 49 => ⟨S4x256x16, .f32⟩
  | 50 => ⟨S4x256x16, .f32⟩
  | 51 => ⟨S4x256x16, .f32⟩
  | 52 => ⟨S4x1x16, .f32⟩
  | 53 => ⟨S4x16, .f32⟩
  | 54 => ⟨S4x1x16, .f32⟩
  | 55 => ⟨S4x256x16, .f32⟩
  | 56 => ⟨S4x256x16, .f32⟩
  | 57 => ⟨S_, .f32⟩
  | 58 => ⟨S4x256, .f32⟩
  | 59 => ⟨S_, .i32⟩
  | 60 => ⟨S1, .i32⟩
  | 61 => ⟨S4x512x256, .f32⟩
  | 62 => ⟨S4x256x16, .f32⟩
  | 63 => ⟨S4x256x16, .f32⟩
  | 64 => ⟨S4x1x256, .f32⟩
  | 65 => ⟨S4x256, .f32⟩
  | 66 => ⟨S4x256x1, .f32⟩
  | 67 => ⟨S4x1x16, .f32⟩
  | 68 => ⟨S4x16, .f32⟩
  | 69 => ⟨S4x1x16, .f32⟩
  | 70 => ⟨S4x256x16, .f32⟩
  | 71 => ⟨S4x256x16, .f32⟩
  | 72 => ⟨S4x256x16, .f32⟩
  | 73 => ⟨S4x256x16, .f32⟩
  | 74 => ⟨S4x1x16, .f32⟩
  | 75 => ⟨S4x16, .f32⟩
  | 76 => ⟨S4x1x16, .f32⟩
  | 77 => ⟨S4x256x16, .f32⟩
  | 78 => ⟨S4x256x16, .f32⟩
  | 79 => ⟨S_, .f32⟩
  | 80 => ⟨S4x256, .f32⟩
  | 81 => ⟨S_, .i32⟩
  | 82 => ⟨S1, .i32⟩
  | 83 => ⟨S4x512x256, .f32⟩
  | 84 => ⟨S4x256x16, .f32⟩
  | 85 => ⟨S4x256x16, .f32⟩
  | 86 => ⟨S4x1x256, .f32⟩
  | 87 => ⟨S4x256, .f32⟩
  | 88 => ⟨S4x256x1, .f32⟩
  | 89 => ⟨S4x1x16, .f32⟩
  | 90 => ⟨S4x16, .f32⟩
  | 91 => ⟨S4x1x16, .f32⟩
  | 92 => ⟨S4x256x16, .f32⟩
  | 93 => ⟨S4x256x16, .f32⟩
  | 94 => ⟨S4x256x16, .f32⟩
  | 95 => ⟨S4x256x16, .f32⟩
  | 96 => ⟨S4x1x16, .f32⟩
  | 97 => ⟨S4x16, .f32⟩
  | 98 => ⟨S4x1x16, .f32⟩
  | 99 => ⟨S4x256x16, .f32⟩
  | 100 => ⟨S4x256x16, .f32⟩
  | 101 => ⟨S_, .f32⟩
  | 102 => ⟨S4x256, .f32⟩
  | 103 => ⟨S_, .i32⟩
  | 104 => ⟨S1, .i32⟩
  | 105 => ⟨S4x512x256, .f32⟩
  | 106 => ⟨S4x256x16, .f32⟩
  | 107 => ⟨S4x256x16, .f32⟩
  | 108 => ⟨S4x1x256, .f32⟩
  | 109 => ⟨S4x256, .f32⟩
  | 110 => ⟨S4x256x1, .f32⟩
  | 111 => ⟨S4x1x16, .f32⟩
  | 112 => ⟨S4x16, .f32⟩
  | 113 => ⟨S4x1x16, .f32⟩
  | 114 => ⟨S4x256x16, .f32⟩
  | 115 => ⟨S4x256x16, .f32⟩
  | 116 => ⟨S4x256x16, .f32⟩
  | 117 => ⟨S4x256x16, .f32⟩
  | 118 => ⟨S4x1x16, .f32⟩
  | 119 => ⟨S4x16, .f32⟩
  | 120 => ⟨S4x1x16, .f32⟩
  | 121 => ⟨S4x256x16, .f32⟩
  | 122 => ⟨S4x256x16, .f32⟩
  | 123 => ⟨S_, .f32⟩
  | 124 => ⟨S4x256, .f32⟩
  | 125 => ⟨S_, .i32⟩
  | 126 => ⟨S1, .i32⟩
  | 127 => ⟨S4x512x256, .f32⟩
  | _ => ⟨S4x512x256, .f32⟩

abbrev hbmTy0_36 (i : Nat) : BufTy := match i % 128 with
  | 0 => ⟨S4x256x16, .f32⟩
  | 1 => ⟨S4x256x16, .f32⟩
  | 2 => ⟨S4x1x256, .f32⟩
  | 3 => ⟨S4x256, .f32⟩
  | 4 => ⟨S4x256x1, .f32⟩
  | 5 => ⟨S4x1x16, .f32⟩
  | 6 => ⟨S4x16, .f32⟩
  | 7 => ⟨S4x1x16, .f32⟩
  | 8 => ⟨S4x256x16, .f32⟩
  | 9 => ⟨S4x256x16, .f32⟩
  | 10 => ⟨S4x256x16, .f32⟩
  | 11 => ⟨S4x256x16, .f32⟩
  | 12 => ⟨S4x1x16, .f32⟩
  | 13 => ⟨S4x16, .f32⟩
  | 14 => ⟨S4x1x16, .f32⟩
  | 15 => ⟨S4x256x16, .f32⟩
  | 16 => ⟨S4x256x16, .f32⟩
  | 17 => ⟨S_, .f32⟩
  | 18 => ⟨S4x256, .f32⟩
  | 19 => ⟨S_, .i32⟩
  | 20 => ⟨S1, .i32⟩
  | 21 => ⟨S4x512x256, .f32⟩
  | 22 => ⟨S4x256x16, .f32⟩
  | 23 => ⟨S4x256x16, .f32⟩
  | 24 => ⟨S4x1x256, .f32⟩
  | 25 => ⟨S4x256, .f32⟩
  | 26 => ⟨S4x256x1, .f32⟩
  | 27 => ⟨S4x1x16, .f32⟩
  | 28 => ⟨S4x16, .f32⟩
  | 29 => ⟨S4x1x16, .f32⟩
  | 30 => ⟨S4x256x16, .f32⟩
  | 31 => ⟨S4x256x16, .f32⟩
  | 32 => ⟨S4x256x16, .f32⟩
  | 33 => ⟨S4x256x16, .f32⟩
  | 34 => ⟨S4x1x16, .f32⟩
  | 35 => ⟨S4x16, .f32⟩
  | 36 => ⟨S4x1x16, .f32⟩
  | 37 => ⟨S4x256x16, .f32⟩
  | 38 => ⟨S4x256x16, .f32⟩
  | 39 => ⟨S_, .f32⟩
  | 40 => ⟨S4x256, .f32⟩
  | 41 => ⟨S_, .i32⟩
  | 42 => ⟨S1, .i32⟩
  | 43 => ⟨S4x512x256, .f32⟩
  | 44 => ⟨S4x256x16, .f32⟩
  | 45 => ⟨S4x256x16, .f32⟩
  | 46 => ⟨S4x1x256, .f32⟩
  | 47 => ⟨S4x256, .f32⟩
  | 48 => ⟨S4x256x1, .f32⟩
  | 49 => ⟨S4x1x16, .f32⟩
  | 50 => ⟨S4x16, .f32⟩
  | 51 => ⟨S4x1x16, .f32⟩
  | 52 => ⟨S4x256x16, .f32⟩
  | 53 => ⟨S4x256x16, .f32⟩
  | 54 => ⟨S4x256x16, .f32⟩
  | 55 => ⟨S4x256x16, .f32⟩
  | 56 => ⟨S4x1x16, .f32⟩
  | 57 => ⟨S4x16, .f32⟩
  | 58 => ⟨S4x1x16, .f32⟩
  | 59 => ⟨S4x256x16, .f32⟩
  | 60 => ⟨S4x256x16, .f32⟩
  | 61 => ⟨S_, .f32⟩
  | 62 => ⟨S4x256, .f32⟩
  | 63 => ⟨S_, .i32⟩
  | 64 => ⟨S1, .i32⟩
  | 65 => ⟨S4x512x256, .f32⟩
  | 66 => ⟨S4x256x16, .f32⟩
  | 67 => ⟨S4x256x16, .f32⟩
  | 68 => ⟨S4x1x256, .f32⟩
  | 69 => ⟨S4x256, .f32⟩
  | 70 => ⟨S4x256x1, .f32⟩
  | 71 => ⟨S4x1x16, .f32⟩
  | 72 => ⟨S4x16, .f32⟩
  | 73 => ⟨S4x1x16, .f32⟩
  | 74 => ⟨S4x256x16, .f32⟩
  | 75 => ⟨S4x256x16, .f32⟩
  | 76 => ⟨S4x256x16, .f32⟩
  | 77 => ⟨S4x256x16, .f32⟩
  | 78 => ⟨S4x1x16, .f32⟩
  | 79 => ⟨S4x16, .f32⟩
  | 80 => ⟨S4x1x16, .f32⟩
  | 81 => ⟨S4x256x16, .f32⟩
  | 82 => ⟨S4x256x16, .f32⟩
  | 83 => ⟨S_, .f32⟩
  | 84 => ⟨S4x256, .f32⟩
  | 85 => ⟨S_, .i32⟩
  | 86 => ⟨S1, .i32⟩
  | 87 => ⟨S4x512x256, .f32⟩
  | 88 => ⟨S4x256x16, .f32⟩
  | 89 => ⟨S4x256x16, .f32⟩
  | 90 => ⟨S4x1x256, .f32⟩
  | 91 => ⟨S4x256, .f32⟩
  | 92 => ⟨S4x256x1, .f32⟩
  | 93 => ⟨S4x1x16, .f32⟩
  | 94 => ⟨S4x16, .f32⟩
  | 95 => ⟨S4x1x16, .f32⟩
  | 96 => ⟨S4x256x16, .f32⟩
  | 97 => ⟨S4x256x16, .f32⟩
  | 98 => ⟨S4x256x16, .f32⟩
  | 99 => ⟨S4x256x16, .f32⟩
  | 100 => ⟨S4x1x16, .f32⟩
  | 101 => ⟨S4x16, .f32⟩
  | 102 => ⟨S4x1x16, .f32⟩
  | 103 => ⟨S4x256x16, .f32⟩
  | 104 => ⟨S4x256x16, .f32⟩
  | 105 => ⟨S_, .f32⟩
  | 106 => ⟨S4x256, .f32⟩
  | 107 => ⟨S_, .i32⟩
  | 108 => ⟨S1, .i32⟩
  | 109 => ⟨S4x512x256, .f32⟩
  | 110 => ⟨S4x256x16, .f32⟩
  | 111 => ⟨S4x256x16, .f32⟩
  | 112 => ⟨S4x1x256, .f32⟩
  | 113 => ⟨S4x256, .f32⟩
  | 114 => ⟨S4x256x1, .f32⟩
  | 115 => ⟨S4x1x16, .f32⟩
  | 116 => ⟨S4x16, .f32⟩
  | 117 => ⟨S4x1x16, .f32⟩
  | 118 => ⟨S4x256x16, .f32⟩
  | 119 => ⟨S4x256x16, .f32⟩
  | 120 => ⟨S4x256x16, .f32⟩
  | 121 => ⟨S4x256x16, .f32⟩
  | 122 => ⟨S4x1x16, .f32⟩
  | 123 => ⟨S4x16, .f32⟩
  | 124 => ⟨S4x1x16, .f32⟩
  | 125 => ⟨S4x256x16, .f32⟩
  | 126 => ⟨S4x256x16, .f32⟩
  | 127 => ⟨S_, .f32⟩
  | _ => ⟨S4x512x256, .f32⟩

abbrev hbmTy0_37 (i : Nat) : BufTy := match i % 128 with
  | 0 => ⟨S4x256, .f32⟩
  | 1 => ⟨S_, .i32⟩
  | 2 => ⟨S1, .i32⟩
  | 3 => ⟨S4x512x256, .f32⟩
  | 4 => ⟨S4x256x16, .f32⟩
  | 5 => ⟨S4x256x16, .f32⟩
  | 6 => ⟨S4x1x256, .f32⟩
  | 7 => ⟨S4x256, .f32⟩
  | 8 => ⟨S4x256x1, .f32⟩
  | 9 => ⟨S4x1x16, .f32⟩
  | 10 => ⟨S4x16, .f32⟩
  | 11 => ⟨S4x1x16, .f32⟩
  | 12 => ⟨S4x256x16, .f32⟩
  | 13 => ⟨S4x256x16, .f32⟩
  | 14 => ⟨S4x256x16, .f32⟩
  | 15 => ⟨S4x256x16, .f32⟩
  | 16 => ⟨S4x1x16, .f32⟩
  | 17 => ⟨S4x16, .f32⟩
  | 18 => ⟨S4x1x16, .f32⟩
  | 19 => ⟨S4x256x16, .f32⟩
  | 20 => ⟨S4x256x16, .f32⟩
  | 21 => ⟨S_, .f32⟩
  | 22 => ⟨S4x256, .f32⟩
  | 23 => ⟨S_, .i32⟩
  | 24 => ⟨S1, .i32⟩
  | 25 => ⟨S4x512x256, .f32⟩
  | 26 => ⟨S4x256x16, .f32⟩
  | 27 => ⟨S4x256x16, .f32⟩
  | 28 => ⟨S4x1x256, .f32⟩
  | 29 => ⟨S4x256, .f32⟩
  | 30 => ⟨S4x256x1, .f32⟩
  | 31 => ⟨S4x1x16, .f32⟩
  | 32 => ⟨S4x16, .f32⟩
  | 33 => ⟨S4x1x16, .f32⟩
  | 34 => ⟨S4x256x16, .f32⟩
  | 35 => ⟨S4x256x16, .f32⟩
  | 36 => ⟨S4x256x16, .f32⟩
  | 37 => ⟨S4x256x16, .f32⟩
  | 38 => ⟨S4x1x16, .f32⟩
  | 39 => ⟨S4x16, .f32⟩
  | 40 => ⟨S4x1x16, .f32⟩
  | 41 => ⟨S4x256x16, .f32⟩
  | 42 => ⟨S4x256x16, .f32⟩
  | 43 => ⟨S_, .f32⟩
  | 44 => ⟨S4x256, .f32⟩
  | 45 => ⟨S_, .i32⟩
  | 46 => ⟨S1, .i32⟩
  | 47 => ⟨S4x512x256, .f32⟩
  | 48 => ⟨S4x256x16, .f32⟩
  | 49 => ⟨S4x256x16, .f32⟩
  | 50 => ⟨S4x1x256, .f32⟩
  | 51 => ⟨S4x256, .f32⟩
  | 52 => ⟨S4x256x1, .f32⟩
  | 53 => ⟨S4x1x16, .f32⟩
  | 54 => ⟨S4x16, .f32⟩
  | 55 => ⟨S4x1x16, .f32⟩
  | 56 => ⟨S4x256x16, .f32⟩
  | 57 => ⟨S4x256x16, .f32⟩
  | 58 => ⟨S4x256x16, .f32⟩
  | 59 => ⟨S4x256x16, .f32⟩
  | 60 => ⟨S4x1x16, .f32⟩
  | 61 => ⟨S4x16, .f32⟩
  | 62 => ⟨S4x1x16, .f32⟩
  | 63 => ⟨S4x256x16, .f32⟩
  | 64 => ⟨S4x256x16, .f32⟩
  | 65 => ⟨S_, .f32⟩
  | 66 => ⟨S4x256, .f32⟩
  | 67 => ⟨S_, .i32⟩
  | 68 => ⟨S1, .i32⟩
  | 69 => ⟨S4x512x256, .f32⟩
  | 70 => ⟨S4x256x16, .f32⟩
  | 71 => ⟨S4x256x16, .f32⟩
  | 72 => ⟨S4x1x256, .f32⟩
  | 73 => ⟨S4x256, .f32⟩
  | 74 => ⟨S4x256x1, .f32⟩
  | 75 => ⟨S4x1x16, .f32⟩
  | 76 => ⟨S4x16, .f32⟩
  | 77 => ⟨S4x1x16, .f32⟩
  | 78 => ⟨S4x256x16, .f32⟩
  | 79 => ⟨S4x256x16, .f32⟩
  | 80 => ⟨S4x256x16, .f32⟩
  | 81 => ⟨S4x256x16, .f32⟩
  | 82 => ⟨S4x1x16, .f32⟩
  | 83 => ⟨S4x16, .f32⟩
  | 84 => ⟨S4x1x16, .f32⟩
  | 85 => ⟨S4x256x16, .f32⟩
  | 86 => ⟨S4x256x16, .f32⟩
  | 87 => ⟨S_, .f32⟩
  | 88 => ⟨S4x256, .f32⟩
  | 89 => ⟨S_, .i32⟩
  | 90 => ⟨S1, .i32⟩
  | 91 => ⟨S4x512x256, .f32⟩
  | 92 => ⟨S4x256x16, .f32⟩
  | 93 => ⟨S4x256x16, .f32⟩
  | 94 => ⟨S4x1x256, .f32⟩
  | 95 => ⟨S4x256, .f32⟩
  | 96 => ⟨S4x256x1, .f32⟩
  | 97 => ⟨S4x1x16, .f32⟩
  | 98 => ⟨S4x16, .f32⟩
  | 99 => ⟨S4x1x16, .f32⟩
  | 100 => ⟨S4x256x16, .f32⟩
  | 101 => ⟨S4x256x16, .f32⟩
  | 102 => ⟨S4x256x16, .f32⟩
  | 103 => ⟨S4x256x16, .f32⟩
  | 104 => ⟨S4x1x16, .f32⟩
  | 105 => ⟨S4x16, .f32⟩
  | 106 => ⟨S4x1x16, .f32⟩
  | 107 => ⟨S4x256x16, .f32⟩
  | 108 => ⟨S4x256x16, .f32⟩
  | 109 => ⟨S_, .f32⟩
  | 110 => ⟨S4x256, .f32⟩
  | 111 => ⟨S_, .i32⟩
  | 112 => ⟨S1, .i32⟩
  | 113 => ⟨S4x512x256, .f32⟩
  | 114 => ⟨S4x256x16, .f32⟩
  | 115 => ⟨S4x256x16, .f32⟩
  | 116 => ⟨S4x1x256, .f32⟩
  | 117 => ⟨S4x256, .f32⟩
  | 118 => ⟨S4x256x1, .f32⟩
  | 119 => ⟨S4x1x16, .f32⟩
  | 120 => ⟨S4x16, .f32⟩
  | 121 => ⟨S4x1x16, .f32⟩
  | 122 => ⟨S4x256x16, .f32⟩
  | 123 => ⟨S4x256x16, .f32⟩
  | 124 => ⟨S4x256x16, .f32⟩
  | 125 => ⟨S4x256x16, .f32⟩
  | 126 => ⟨S4x1x16, .f32⟩
  | 127 => ⟨S4x16, .f32⟩
  | _ => ⟨S4x512x256, .f32⟩

abbrev hbmTy0_38 (i : Nat) : BufTy := match i % 128 with
  | 0 => ⟨S4x1x16, .f32⟩
  | 1 => ⟨S4x256x16, .f32⟩
  | 2 => ⟨S4x256x16, .f32⟩
  | 3 => ⟨S_, .f32⟩
  | 4 => ⟨S4x256, .f32⟩
  | 5 => ⟨S_, .i32⟩
  | 6 => ⟨S1, .i32⟩
  | 7 => ⟨S4x512x256, .f32⟩
  | 8 => ⟨S4x256x16, .f32⟩
  | 9 => ⟨S4x256x16, .f32⟩
  | 10 => ⟨S4x1x256, .f32⟩
  | 11 => ⟨S4x256, .f32⟩
  | 12 => ⟨S4x256x1, .f32⟩
  | 13 => ⟨S4x1x16, .f32⟩
  | 14 => ⟨S4x16, .f32⟩
  | 15 => ⟨S4x1x16, .f32⟩
  | 16 => ⟨S4x256x16, .f32⟩
  | 17 => ⟨S4x256x16, .f32⟩
  | 18 => ⟨S4x256x16, .f32⟩
  | 19 => ⟨S4x256x16, .f32⟩
  | 20 => ⟨S4x1x16, .f32⟩
  | 21 => ⟨S4x16, .f32⟩
  | 22 => ⟨S4x1x16, .f32⟩
  | 23 => ⟨S4x256x16, .f32⟩
  | 24 => ⟨S4x256x16, .f32⟩
  | 25 => ⟨S_, .f32⟩
  | 26 => ⟨S4x256, .f32⟩
  | 27 => ⟨S_, .i32⟩
  | 28 => ⟨S1, .i32⟩
  | 29 => ⟨S4x512x256, .f32⟩
  | 30 => ⟨S4x256x16, .f32⟩
  | 31 => ⟨S4x256x16, .f32⟩
  | 32 => ⟨S4x1x256, .f32⟩
  | 33 => ⟨S4x256, .f32⟩
  | 34 => ⟨S4x256x1, .f32⟩
  | 35 => ⟨S4x1x16, .f32⟩
  | 36 => ⟨S4x16, .f32⟩
  | 37 => ⟨S4x1x16, .f32⟩
  | 38 => ⟨S4x256x16, .f32⟩
  | 39 => ⟨S4x256x16, .f32⟩
  | 40 => ⟨S4x256x16, .f32⟩
  | 41 => ⟨S4x256x16, .f32⟩
  | 42 => ⟨S4x1x16, .f32⟩
  | 43 => ⟨S4x16, .f32⟩
  | 44 => ⟨S4x1x16, .f32⟩
  | 45 => ⟨S4x256x16, .f32⟩
  | 46 => ⟨S4x256x16, .f32⟩
  | 47 => ⟨S_, .f32⟩
  | 48 => ⟨S4x256, .f32⟩
  | 49 => ⟨S_, .i32⟩
  | 50 => ⟨S1, .i32⟩
  | 51 => ⟨S4x512x256, .f32⟩
  | 52 => ⟨S4x256x16, .f32⟩
  | 53 => ⟨S4x256x16, .f32⟩
  | 54 => ⟨S4x1x256, .f32⟩
  | 55 => ⟨S4x256, .f32⟩
  | 56 => ⟨S4x256x1, .f32⟩
  | 57 => ⟨S4x1x16, .f32⟩
  | 58 => ⟨S4x16, .f32⟩
  | 59 => ⟨S4x1x16, .f32⟩
  | 60 => ⟨S4x256x16, .f32⟩
  | 61 => ⟨S4x256x16, .f32⟩
  | 62 => ⟨S4x256x16, .f32⟩
  | 63 => ⟨S4x256x16, .f32⟩
  | 64 => ⟨S4x1x16, .f32⟩
  | 65 => ⟨S4x16, .f32⟩
  | 66 => ⟨S4x1x16, .f32⟩
  | 67 => ⟨S4x256x16, .f32⟩
  | 68 => ⟨S4x256x16, .f32⟩
  | 69 => ⟨S_, .f32⟩
  | 70 => ⟨S4x256, .f32⟩
  | 71 => ⟨S_, .i32⟩
  | 72 => ⟨S1, .i32⟩
  | 73 => ⟨S4x512x256, .f32⟩
  | 74 => ⟨S4x256x16, .f32⟩
  | 75 => ⟨S4x256x16, .f32⟩
  | 76 => ⟨S4x1x256, .f32⟩
  | 77 => ⟨S4x256, .f32⟩
  | 78 => ⟨S4x256x1, .f32⟩
  | 79 => ⟨S4x1x16, .f32⟩
  | 80 => ⟨S4x16, .f32⟩
  | 81 => ⟨S4x1x16, .f32⟩
  | 82 => ⟨S4x256x16, .f32⟩
  | 83 => ⟨S4x256x16, .f32⟩
  | 84 => ⟨S4x256x16, .f32⟩
  | 85 => ⟨S4x256x16, .f32⟩
  | 86 => ⟨S4x1x16, .f32⟩
  | 87 => ⟨S4x16, .f32⟩
  | 88 => ⟨S4x1x16, .f32⟩
  | 89 => ⟨S4x256x16, .f32⟩
  | 90 => ⟨S4x256x16, .f32⟩
  | 91 => ⟨S_, .f32⟩
  | 92 => ⟨S4x256, .f32⟩
  | 93 => ⟨S_, .i32⟩
  | 94 => ⟨S1, .i32⟩
  | 95 => ⟨S4x512x256, .f32⟩
  | 96 => ⟨S4x256x16, .f32⟩
  | 97 => ⟨S4x256x16, .f32⟩
  | 98 => ⟨S4x1x256, .f32⟩
  | 99 => ⟨S4x256, .f32⟩
  | 100 => ⟨S4x256x1, .f32⟩
  | 101 => ⟨S4x1x16, .f32⟩
  | 102 => ⟨S4x16, .f32⟩
  | 103 => ⟨S4x1x16, .f32⟩
  | 104 => ⟨S4x256x16, .f32⟩
  | 105 => ⟨S4x256x16, .f32⟩
  | 106 => ⟨S4x256x16, .f32⟩
  | 107 => ⟨S4x256x16, .f32⟩
  | 108 => ⟨S4x1x16, .f32⟩
  | 109 => ⟨S4x16, .f32⟩
  | 110 => ⟨S4x1x16, .f32⟩
  | 111 => ⟨S4x256x16, .f32⟩
  | 112 => ⟨S4x256x16, .f32⟩
  | 113 => ⟨S_, .f32⟩
  | 114 => ⟨S4x256, .f32⟩
  | 115 => ⟨S_, .i32⟩
  | 116 => ⟨S1, .i32⟩
  | 117 => ⟨S4x512x256, .f32⟩
  | 118 => ⟨S4x256x16, .f32⟩
  | 119 => ⟨S4x256x16, .f32⟩
  | 120 => ⟨S4x1x256, .f32⟩
  | 121 => ⟨S4x256, .f32⟩
  | 122 => ⟨S4x256x1, .f32⟩
  | 123 => ⟨S4x1x16, .f32⟩
  | 124 => ⟨S4x16, .f32⟩
  | 125 => ⟨S4x1x16, .f32⟩
  | 126 => ⟨S4x256x16, .f32⟩
  | 127 => ⟨S4x256x16, .f32⟩
  | _ => ⟨S4x512x256, .f32⟩

abbrev hbmTy0_39 (i : Nat) : BufTy := match i % 128 with
  | 0 => ⟨S4x256x16, .f32⟩
  | 1 => ⟨S4x256x16, .f32⟩
  | 2 => ⟨S4x1x16, .f32⟩
  | 3 => ⟨S4x16, .f32⟩
  | 4 => ⟨S4x1x16, .f32⟩
  | 5 => ⟨S4x256x16, .f32⟩
  | 6 => ⟨S4x256x16, .f32⟩
  | 7 => ⟨S_, .f32⟩
  | 8 => ⟨S4x256, .f32⟩
  | 9 => ⟨S_, .i32⟩
  | 10 => ⟨S1, .i32⟩
  | 11 => ⟨S4x512x256, .f32⟩
  | 12 => ⟨S4x256x16, .f32⟩
  | 13 => ⟨S4x256x16, .f32⟩
  | 14 => ⟨S4x1x256, .f32⟩
  | 15 => ⟨S4x256, .f32⟩
  | 16 => ⟨S4x256x1, .f32⟩
  | 17 => ⟨S4x1x16, .f32⟩
  | 18 => ⟨S4x16, .f32⟩
  | 19 => ⟨S4x1x16, .f32⟩
  | 20 => ⟨S4x256x16, .f32⟩
  | 21 => ⟨S4x256x16, .f32⟩
  | 22 => ⟨S4x256x16, .f32⟩
  | 23 => ⟨S4x256x16, .f32⟩
  | 24 => ⟨S4x1x16, .f32⟩
  | 25 => ⟨S4x16, .f32⟩
  | 26 => ⟨S4x1x16, .f32⟩
  | 27 => ⟨S4x256x16, .f32⟩
  | 28 => ⟨S4x256x16, .f32⟩
  | 29 => ⟨S_, .f32⟩
  | 30 => ⟨S4x256, .f32⟩
  | 31 => ⟨S_, .i32⟩
  | 32 => ⟨S1, .i32⟩
  | 33 => ⟨S4x512x256, .f32⟩
  | 34 => ⟨S4x256x16, .f32⟩
  | 35 => ⟨S4x256x16, .f32⟩
  | 36 => ⟨S4x1x256, .f32⟩
  | 37 => ⟨S4x256, .f32⟩
  | 38 => ⟨S4x256x1, .f32⟩
  | 39 => ⟨S4x1x16, .f32⟩
  | 40 => ⟨S4x16, .f32⟩
  | 41 => ⟨S4x1x16, .f32⟩
  | 42 => ⟨S4x256x16, .f32⟩
  | 43 => ⟨S4x256x16, .f32⟩
  | 44 => ⟨S4x256x16, .f32⟩
  | 45 => ⟨S4x256x16, .f32⟩
  | 46 => ⟨S4x1x16, .f32⟩
  | 47 => ⟨S4x16, .f32⟩
  | 48 => ⟨S4x1x16, .f32⟩
  | 49 => ⟨S4x256x16, .f32⟩
  | 50 => ⟨S4x256x16, .f32⟩
  | 51 => ⟨S_, .f32⟩
  | 52 => ⟨S4x256, .f32⟩
  | 53 => ⟨S_, .i32⟩
  | 54 => ⟨S1, .i32⟩
  | 55 => ⟨S4x512x256, .f32⟩
  | 56 => ⟨S4x256x16, .f32⟩
  | 57 => ⟨S4x256x16, .f32⟩
  | 58 => ⟨S4x1x256, .f32⟩
  | 59 => ⟨S4x256, .f32⟩
  | 60 => ⟨S4x256x1, .f32⟩
  | 61 => ⟨S4x1x16, .f32⟩
  | 62 => ⟨S4x16, .f32⟩
  | 63 => ⟨S4x1x16, .f32⟩
  | 64 => ⟨S4x256x16, .f32⟩
  | 65 => ⟨S4x256x16, .f32⟩
  | 66 => ⟨S4x256x16, .f32⟩
  | 67 => ⟨S4x256x16, .f32⟩
  | 68 => ⟨S4x1x16, .f32⟩
  | 69 => ⟨S4x16, .f32⟩
  | 70 => ⟨S4x1x16, .f32⟩
  | 71 => ⟨S4x256x16, .f32⟩
  | 72 => ⟨S4x256x16, .f32⟩
  | 73 => ⟨S_, .f32⟩
  | 74 => ⟨S4x256, .f32⟩
  | 75 => ⟨S_, .i32⟩
  | 76 => ⟨S1, .i32⟩
  | 77 => ⟨S4x512x256, .f32⟩
  | 78 => ⟨S4x256x16, .f32⟩
  | 79 => ⟨S4x256x16, .f32⟩
  | 80 => ⟨S4x1x256, .f32⟩
  | 81 => ⟨S4x256, .f32⟩
  | 82 => ⟨S4x256x1, .f32⟩
  | 83 => ⟨S4x1x16, .f32⟩
  | 84 => ⟨S4x16, .f32⟩
  | 85 => ⟨S4x1x16, .f32⟩
  | 86 => ⟨S4x256x16, .f32⟩
  | 87 => ⟨S4x256x16, .f32⟩
  | 88 => ⟨S4x256x16, .f32⟩
  | 89 => ⟨S4x256x16, .f32⟩
  | 90 => ⟨S4x1x16, .f32⟩
  | 91 => ⟨S4x16, .f32⟩
  | 92 => ⟨S4x1x16, .f32⟩
  | 93 => ⟨S4x256x16, .f32⟩
  | 94 => ⟨S4x256x16, .f32⟩
  | 95 => ⟨S_, .f32⟩
  | 96 => ⟨S4x256, .f32⟩
  | 97 => ⟨S_, .i32⟩
  | 98 => ⟨S1, .i32⟩
  | 99 => ⟨S4x512x256, .f32⟩
  | 100 => ⟨S4x256x16, .f32⟩
  | 101 => ⟨S4x256x16, .f32⟩
  | 102 => ⟨S4x1x256, .f32⟩
  | 103 => ⟨S4x256, .f32⟩
  | 104 => ⟨S4x256x1, .f32⟩
  | 105 => ⟨S4x1x16, .f32⟩
  | 106 => ⟨S4x16, .f32⟩
  | 107 => ⟨S4x1x16, .f32⟩
  | 108 => ⟨S4x256x16, .f32⟩
  | 109 => ⟨S4x256x16, .f32⟩
  | 110 => ⟨S4x256x16, .f32⟩
  | 111 => ⟨S4x256x16, .f32⟩
  | 112 => ⟨S4x1x16, .f32⟩
  | 113 => ⟨S4x16, .f32⟩
  | 114 => ⟨S4x1x16, .f32⟩
  | 115 => ⟨S4x256x16, .f32⟩
  | 116 => ⟨S4x256x16, .f32⟩
  | 117 => ⟨S_, .f32⟩
  | 118 => ⟨S4x256, .f32⟩
  | 119 => ⟨S_, .i32⟩
  | 120 => ⟨S1, .i32⟩
  | 121 => ⟨S4x512x256, .f32⟩
  | 122 => ⟨S4x256x16, .f32⟩
  | 123 => ⟨S4x256x16, .f32⟩
  | 124 => ⟨S4x1x256, .f32⟩
  | 125 => ⟨S4x256, .f32⟩
  | 126 => ⟨S4x256x1, .f32⟩
  | 127 => ⟨S4x1x16, .f32⟩
  | _ => ⟨S4x512x256, .f32⟩

abbrev hbmTy0_40 (i : Nat) : BufTy := match i % 128 with
  | 0 => ⟨S4x16, .f32⟩
  | 1 => ⟨S4x1x16, .f32⟩
  | 2 => ⟨S4x256x16, .f32⟩
  | 3 => ⟨S4x256x16, .f32⟩
  | 4 => ⟨S4x256x16, .f32⟩
  | 5 => ⟨S4x256x16, .f32⟩
  | 6 => ⟨S4x1x16, .f32⟩
  | 7 => ⟨S4x16, .f32⟩
  | 8 => ⟨S4x1x16, .f32⟩
  | 9 => ⟨S4x256x16, .f32⟩
  | 10 => ⟨S4x256x16, .f32⟩
  | 11 => ⟨S_, .f32⟩
  | 12 => ⟨S4x256, .f32⟩
  | 13 => ⟨S_, .i32⟩
  | 14 => ⟨S1, .i32⟩
  | 15 => ⟨S4x512x256, .f32⟩
  | 16 => ⟨S4x256x16, .f32⟩
  | 17 => ⟨S4x256x16, .f32⟩
  | 18 => ⟨S4x1x256, .f32⟩
  | 19 => ⟨S4x256, .f32⟩
  | 20 => ⟨S4x256x1, .f32⟩
  | 21 => ⟨S4x1x16, .f32⟩
  | 22 => ⟨S4x16, .f32⟩
  | 23 => ⟨S4x1x16, .f32⟩
  | 24 => ⟨S4x256x16, .f32⟩
  | 25 => ⟨S4x256x16, .f32⟩
  | 26 => ⟨S4x256x16, .f32⟩
  | 27 => ⟨S4x256x16, .f32⟩
  | 28 => ⟨S4x1x16, .f32⟩
  | 29 => ⟨S4x16, .f32⟩
  | 30 => ⟨S4x1x16, .f32⟩
  | 31 => ⟨S4x256x16, .f32⟩
  | 32 => ⟨S4x256x16, .f32⟩
  | 33 => ⟨S_, .f32⟩
  | 34 => ⟨S4x256, .f32⟩
  | 35 => ⟨S_, .i32⟩
  | 36 => ⟨S1, .i32⟩
  | 37 => ⟨S4x512x256, .f32⟩
  | 38 => ⟨S4x256x16, .f32⟩
  | 39 => ⟨S4x256x16, .f32⟩
  | 40 => ⟨S4x1x256, .f32⟩
  | 41 => ⟨S4x256, .f32⟩
  | 42 => ⟨S4x256x1, .f32⟩
  | 43 => ⟨S4x1x16, .f32⟩
  | 44 => ⟨S4x16, .f32⟩
  | 45 => ⟨S4x1x16, .f32⟩
  | 46 => ⟨S4x256x16, .f32⟩
  | 47 => ⟨S4x256x16, .f32⟩
  | 48 => ⟨S4x256x16, .f32⟩
  | 49 => ⟨S4x256x16, .f32⟩
  | 50 => ⟨S4x1x16, .f32⟩
  | 51 => ⟨S4x16, .f32⟩
  | 52 => ⟨S4x1x16, .f32⟩
  | 53 => ⟨S4x256x16, .f32⟩
  | 54 => ⟨S4x256x16, .f32⟩
  | 55 => ⟨S_, .f32⟩
  | 56 => ⟨S4x256, .f32⟩
  | 57 => ⟨S_, .i32⟩
  | 58 => ⟨S1, .i32⟩
  | 59 => ⟨S4x512x256, .f32⟩
  | 60 => ⟨S4x256x16, .f32⟩
  | 61 => ⟨S4x256x16, .f32⟩
  | 62 => ⟨S4x1x256, .f32⟩
  | 63 => ⟨S4x256, .f32⟩
  | 64 => ⟨S4x256x1, .f32⟩
  | 65 => ⟨S4x1x16, .f32⟩
  | 66 => ⟨S4x16, .f32⟩
  | 67 => ⟨S4x1x16, .f32⟩
  | 68 => ⟨S4x256x16, .f32⟩
  | 69 => ⟨S4x256x16, .f32⟩
  | 70 => ⟨S4x256x16, .f32⟩
  | 71 => ⟨S4x256x16, .f32⟩
  | 72 => ⟨S4x1x16, .f32⟩
  | 73 => ⟨S4x16, .f32⟩
  | 74 => ⟨S4x1x16, .f32⟩
  | 75 => ⟨S4x256x16, .f32⟩
  | 76 => ⟨S4x256x16, .f32⟩
  | 77 => ⟨S_, .f32⟩
  | 78 => ⟨S4x256, .f32⟩
  | 79 => ⟨S_, .i32⟩
  | 80 => ⟨S1, .i32⟩
  | 81 => ⟨S4x512x256, .f32⟩
  | 82 => ⟨S4x256x16, .f32⟩
  | 83 => ⟨S4x256x16, .f32⟩
  | 84 => ⟨S4x1x256, .f32⟩
  | 85 => ⟨S4x256, .f32⟩
  | 86 => ⟨S4x256x1, .f32⟩
  | 87 => ⟨S4x1x16, .f32⟩
  | 88 => ⟨S4x16, .f32⟩
  | 89 => ⟨S4x1x16, .f32⟩
  | 90 => ⟨S4x256x16, .f32⟩
  | 91 => ⟨S4x256x16, .f32⟩
  | 92 => ⟨S4x256x16, .f32⟩
  | 93 => ⟨S4x256x16, .f32⟩
  | 94 => ⟨S4x1x16, .f32⟩
  | 95 => ⟨S4x16, .f32⟩
  | 96 => ⟨S4x1x16, .f32⟩
  | 97 => ⟨S4x256x16, .f32⟩
  | 98 => ⟨S4x256x16, .f32⟩
  | 99 => ⟨S_, .f32⟩
  | 100 => ⟨S4x256, .f32⟩
  | 101 => ⟨S_, .i32⟩
  | 102 => ⟨S1, .i32⟩
  | 103 => ⟨S4x512x256, .f32⟩
  | 104 => ⟨S4x256x16, .f32⟩
  | 105 => ⟨S4x256x16, .f32⟩
  | 106 => ⟨S4x1x256, .f32⟩
  | 107 => ⟨S4x256, .f32⟩
  | 108 => ⟨S4x256x1, .f32⟩
  | 109 => ⟨S4x1x16, .f32⟩
  | 110 => ⟨S4x16, .f32⟩
  | 111 => ⟨S4x1x16, .f32⟩
  | 112 => ⟨S4x256x16, .f32⟩
  | 113 => ⟨S4x256x16, .f32⟩
  | 114 => ⟨S4x256x16, .f32⟩
  | 115 => ⟨S4x256x16, .f32⟩
  | 116 => ⟨S4x1x16, .f32⟩
  | 117 => ⟨S4x16, .f32⟩
  | 118 => ⟨S4x1x16, .f32⟩
  | 119 => ⟨S4x256x16, .f32⟩
  | 120 => ⟨S4x256x16, .f32⟩
  | 121 => ⟨S_, .f32⟩
  | 122 => ⟨S4x256, .f32⟩
  | 123 => ⟨S_, .i32⟩
  | 124 => ⟨S1, .i32⟩
  | 125 => ⟨S4x512x256, .f32⟩
  | 126 => ⟨S4x256x16, .f32⟩
  | 127 => ⟨S4x256x16, .f32⟩
  | _ => ⟨S4x512x256, .f32⟩

abbrev hbmTy0_41 (i : Nat) : BufTy := match i % 128 with
  | 0 => ⟨S4x1x256, .f32⟩
  | 1 => ⟨S4x256, .f32⟩
  | 2 => ⟨S4x256x1, .f32⟩
  | 3 => ⟨S4x1x16, .f32⟩
  | 4 => ⟨S4x16, .f32⟩
  | 5 => ⟨S4x1x16, .f32⟩
  | 6 => ⟨S4x256x16, .f32⟩
  | 7 => ⟨S4x256x16, .f32⟩
  | 8 => ⟨S4x256x16, .f32⟩
  | 9 => ⟨S4x256x16, .f32⟩
  | 10 => ⟨S4x1x16, .f32⟩
  | 11 => ⟨S4x16, .f32⟩
  | 12 => ⟨S4x1x16, .f32⟩
  | 13 => ⟨S4x256x16, .f32⟩
  | 14 => ⟨S4x256x16, .f32⟩
  | 15 => ⟨S_, .f32⟩
  | 16 => ⟨S4x256, .f32⟩
  | 17 => ⟨S_, .i32⟩
  | 18 => ⟨S1, .i32⟩
  | 19 => ⟨S4x512x256, .f32⟩
  | 20 => ⟨S4x256x16, .f32⟩
  | 21 => ⟨S4x256x16, .f32⟩
  | 22 => ⟨S4x1x256, .f32⟩
  | 23 => ⟨S4x256, .f32⟩
  | 24 => ⟨S4x256x1, .f32⟩
  | 25 => ⟨S4x1x16, .f32⟩
  | 26 => ⟨S4x16, .f32⟩
  | 27 => ⟨S4x1x16, .f32⟩
  | 28 => ⟨S4x256x16, .f32⟩
  | 29 => ⟨S4x256x16, .f32⟩
  | 30 => ⟨S4x256x16, .f32⟩
  | 31 => ⟨S4x256x16, .f32⟩
  | 32 => ⟨S4x1x16, .f32⟩
  | 33 => ⟨S4x16, .f32⟩
  | 34 => ⟨S4x1x16, .f32⟩
  | 35 => ⟨S4x256x16, .f32⟩
  | 36 => ⟨S4x256x16, .f32⟩
  | 37 => ⟨S_, .f32⟩
  | 38 => ⟨S4x256, .f32⟩
  | 39 => ⟨S_, .i32⟩
  | 40 => ⟨S1, .i32⟩
  | 41 => ⟨S4x512x256, .f32⟩
  | 42 => ⟨S4x256x16, .f32⟩
  | 43 => ⟨S4x256x16, .f32⟩
  | 44 => ⟨S4x1x256, .f32⟩
  | 45 => ⟨S4x256, .f32⟩
  | 46 => ⟨S4x256x1, .f32⟩
  | 47 => ⟨S4x1x16, .f32⟩
  | 48 => ⟨S4x16, .f32⟩
  | 49 => ⟨S4x1x16, .f32⟩
  | 50 => ⟨S4x256x16, .f32⟩
  | 51 => ⟨S4x256x16, .f32⟩
  | 52 => ⟨S4x256x16, .f32⟩
  | 53 => ⟨S4x256x16, .f32⟩
  | 54 => ⟨S4x1x16, .f32⟩
  | 55 => ⟨S4x16, .f32⟩
  | 56 => ⟨S4x1x16, .f32⟩
  | 57 => ⟨S4x256x16, .f32⟩
  | 58 => ⟨S4x256x16, .f32⟩
  | 59 => ⟨S_, .f32⟩
  | 60 => ⟨S4x256, .f32⟩
  | 61 => ⟨S_, .i32⟩
  | 62 => ⟨S1, .i32⟩
  | 63 => ⟨S4x512x256, .f32⟩
  | 64 => ⟨S4x256x16, .f32⟩
  | 65 => ⟨S4x256x16, .f32⟩
  | 66 => ⟨S4x1x256, .f32⟩
  | 67 => ⟨S4x256, .f32⟩
  | 68 => ⟨S4x256x1, .f32⟩
  | 69 => ⟨S4x1x16, .f32⟩
  | 70 => ⟨S4x16, .f32⟩
  | 71 => ⟨S4x1x16, .f32⟩
  | 72 => ⟨S4x256x16, .f32⟩
  | 73 => ⟨S4x256x16, .f32⟩
  | 74 => ⟨S4x256x16, .f32⟩
  | 75 => ⟨S4x256x16, .f32⟩
  | 76 => ⟨S4x1x16, .f32⟩
  | 77 => ⟨S4x16, .f32⟩
  | 78 => ⟨S4x1x16, .f32⟩
  | 79 => ⟨S4x256x16, .f32⟩
  | 80 => ⟨S4x256x16, .f32⟩
  | 81 => ⟨S_, .f32⟩
  | 82 => ⟨S4x256, .f32⟩
  | 83 => ⟨S_, .i32⟩
  | 84 => ⟨S1, .i32⟩
  | 85 => ⟨S4x512x256, .f32⟩
  | 86 => ⟨S4x256x16, .f32⟩
  | 87 => ⟨S4x256x16, .f32⟩
  | 88 => ⟨S4x1x256, .f32⟩
  | 89 => ⟨S4x256, .f32⟩
  | 90 => ⟨S4x256x1, .f32⟩
  | 91 => ⟨S4x1x16, .f32⟩
  | 92 => ⟨S4x16, .f32⟩
  | 93 => ⟨S4x1x16, .f32⟩
  | 94 => ⟨S4x256x16, .f32⟩
  | 95 => ⟨S4x256x16, .f32⟩
  | 96 => ⟨S4x256x16, .f32⟩
  | 97 => ⟨S4x256x16, .f32⟩
  | 98 => ⟨S4x1x16, .f32⟩
  | 99 => ⟨S4x16, .f32⟩
  | 100 => ⟨S4x1x16, .f32⟩
  | 101 => ⟨S4x256x16, .f32⟩
  | 102 => ⟨S4x256x16, .f32⟩
  | 103 => ⟨S_, .f32⟩
  | 104 => ⟨S4x256, .f32⟩
  | 105 => ⟨S_, .i32⟩
  | 106 => ⟨S1, .i32⟩
  | 107 => ⟨S4x512x256, .f32⟩
  | 108 => ⟨S4x256x16, .f32⟩
  | 109 => ⟨S4x256x16, .f32⟩
  | 110 => ⟨S4x1x256, .f32⟩
  | 111 => ⟨S4x256, .f32⟩
  | 112 => ⟨S4x256x1, .f32⟩
  | 113 => ⟨S4x1x16, .f32⟩
  | 114 => ⟨S4x16, .f32⟩
  | 115 => ⟨S4x1x16, .f32⟩
  | 116 => ⟨S4x256x16, .f32⟩
  | 117 => ⟨S4x256x16, .f32⟩
  | 118 => ⟨S4x256x16, .f32⟩
  | 119 => ⟨S4x256x16, .f32⟩
  | 120 => ⟨S4x1x16, .f32⟩
  | 121 => ⟨S4x16, .f32⟩
  | 122 => ⟨S4x1x16, .f32⟩
  | 123 => ⟨S4x256x16, .f32⟩
  | 124 => ⟨S4x256x16, .f32⟩
  | 125 => ⟨S_, .f32⟩
  | 126 => ⟨S4x256, .f32⟩
  | 127 => ⟨S_, .i32⟩
  | _ => ⟨S4x512x256, .f32⟩

abbrev hbmTy0_42 (i : Nat) : BufTy := match i % 128 with
  | 0 => ⟨S1, .i32⟩
  | 1 => ⟨S4x512x256, .f32⟩
  | 2 => ⟨S4x256x16, .f32⟩
  | 3 => ⟨S4x256x16, .f32⟩
  | 4 => ⟨S4x1x256, .f32⟩
  | 5 => ⟨S4x256, .f32⟩
  | 6 => ⟨S4x256x1, .f32⟩
  | 7 => ⟨S4x1x16, .f32⟩
  | 8 => ⟨S4x16, .f32⟩
  | 9 => ⟨S4x1x16, .f32⟩
  | 10 => ⟨S4x256x16, .f32⟩
  | 11 => ⟨S4x256x16, .f32⟩
  | 12 => ⟨S4x256x16, .f32⟩
  | 13 => ⟨S4x256x16, .f32⟩
  | 14 => ⟨S4x1x16, .f32⟩
  | 15 => ⟨S4x16, .f32⟩
  | 16 => ⟨S4x1x16, .f32⟩
  | 17 => ⟨S4x256x16, .f32⟩
  | 18 => ⟨S4x256x16, .f32⟩
  | 19 => ⟨S_, .f32⟩
  | 20 => ⟨S4x256, .f32⟩
  | 21 => ⟨S_, .i32⟩
  | 22 => ⟨S1, .i32⟩
  | 23 => ⟨S4x512x256, .f32⟩
  | 24 => ⟨S4x256x16, .f32⟩
  | 25 => ⟨S4x256x16, .f32⟩
  | 26 => ⟨S4x1x256, .f32⟩
  | 27 => ⟨S4x256, .f32⟩
  | 28 => ⟨S4x256x1, .f32⟩
  | 29 => ⟨S4x1x16, .f32⟩
  | 30 => ⟨S4x16, .f32⟩
  | 31 => ⟨S4x1x16, .f32⟩
  | 32 => ⟨S4x256x16, .f32⟩
  | 33 => ⟨S4x256x16, .f32⟩
  | 34 => ⟨S4x256x16, .f32⟩
  | 35 => ⟨S4x256x16, .f32⟩
  | 36 => ⟨S4x1x16, .f32⟩
  | 37 => ⟨S4x16, .f32⟩
  | 38 => ⟨S4x1x16, .f32⟩
  | 39 => ⟨S4x256x16, .f32⟩
  | 40 => ⟨S4x256x16, .f32⟩
  | 41 => ⟨S_, .f32⟩
  | 42 => ⟨S4x256, .f32⟩
  | 43 => ⟨S_, .i32⟩
  | 44 => ⟨S1, .i32⟩
  | 45 => ⟨S4x512x256, .f32⟩
  | 46 => ⟨S4x256x16, .f32⟩
  | 47 => ⟨S4x256x16, .f32⟩
  | 48 => ⟨S4x1x256, .f32⟩
  | 49 => ⟨S4x256, .f32⟩
  | 50 => ⟨S4x256x1, .f32⟩
  | 51 => ⟨S4x1x16, .f32⟩
  | 52 => ⟨S4x16, .f32⟩
  | 53 => ⟨S4x1x16, .f32⟩
  | 54 => ⟨S4x256x16, .f32⟩
  | 55 => ⟨S4x256x16, .f32⟩
  | 56 => ⟨S4x256x16, .f32⟩
  | 57 => ⟨S4x256x16, .f32⟩
  | 58 => ⟨S4x1x16, .f32⟩
  | 59 => ⟨S4x16, .f32⟩
  | 60 => ⟨S4x1x16, .f32⟩
  | 61 => ⟨S4x256x16, .f32⟩
  | 62 => ⟨S4x256x16, .f32⟩
  | 63 => ⟨S_, .f32⟩
  | 64 => ⟨S4x256, .f32⟩
  | 65 => ⟨S_, .i32⟩
  | 66 => ⟨S1, .i32⟩
  | 67 => ⟨S4x512x256, .f32⟩
  | 68 => ⟨S4x256x16, .f32⟩
  | 69 => ⟨S4x256x16, .f32⟩
  | 70 => ⟨S4x1x256, .f32⟩
  | 71 => ⟨S4x256, .f32⟩
  | 72 => ⟨S4x256x1, .f32⟩
  | 73 => ⟨S4x1x16, .f32⟩
  | 74 => ⟨S4x16, .f32⟩
  | 75 => ⟨S4x1x16, .f32⟩
  | 76 => ⟨S4x256x16, .f32⟩
  | 77 => ⟨S4x256x16, .f32⟩
  | 78 => ⟨S4x256x16, .f32⟩
  | 79 => ⟨S4x256x16, .f32⟩
  | 80 => ⟨S4x1x16, .f32⟩
  | 81 => ⟨S4x16, .f32⟩
  | 82 => ⟨S4x1x16, .f32⟩
  | 83 => ⟨S4x256x16, .f32⟩
  | 84 => ⟨S4x256x16, .f32⟩
  | 85 => ⟨S_, .f32⟩
  | 86 => ⟨S4x256, .f32⟩
  | 87 => ⟨S_, .i32⟩
  | 88 => ⟨S1, .i32⟩
  | 89 => ⟨S4x512x256, .f32⟩
  | 90 => ⟨S4x256x16, .f32⟩
  | 91 => ⟨S4x256x16, .f32⟩
  | 92 => ⟨S4x1x256, .f32⟩
  | 93 => ⟨S4x256, .f32⟩
  | 94 => ⟨S4x256x1, .f32⟩
  | 95 => ⟨S4x1x16, .f32⟩
  | 96 => ⟨S4x16, .f32⟩
  | 97 => ⟨S4x1x16, .f32⟩
  | 98 => ⟨S4x256x16, .f32⟩
  | 99 => ⟨S4x256x16, .f32⟩
  | 100 => ⟨S4x256x16, .f32⟩
  | 101 => ⟨S4x256x16, .f32⟩
  | 102 => ⟨S4x1x16, .f32⟩
  | 103 => ⟨S4x16, .f32⟩
  | 104 => ⟨S4x1x16, .f32⟩
  | 105 => ⟨S4x256x16, .f32⟩
  | 106 => ⟨S4x256x16, .f32⟩
  | 107 => ⟨S_, .f32⟩
  | 108 => ⟨S4x256, .f32⟩
  | 109 => ⟨S_, .i32⟩
  | 110 => ⟨S1, .i32⟩
  | 111 => ⟨S4x512x256, .f32⟩
  | 112 => ⟨S4x256x16, .f32⟩
  | 113 => ⟨S4x256x16, .f32⟩
  | 114 => ⟨S4x1x256, .f32⟩
  | 115 => ⟨S4x256, .f32⟩
  | 116 => ⟨S4x256x1, .f32⟩
  | 117 => ⟨S4x1x16, .f32⟩
  | 118 => ⟨S4x16, .f32⟩
  | 119 => ⟨S4x1x16, .f32⟩
  | 120 => ⟨S4x256x16, .f32⟩
  | 121 => ⟨S4x256x16, .f32⟩
  | 122 => ⟨S4x256x16, .f32⟩
  | 123 => ⟨S4x256x16, .f32⟩
  | 124 => ⟨S4x1x16, .f32⟩
  | 125 => ⟨S4x16, .f32⟩
  | 126 => ⟨S4x1x16, .f32⟩
  | 127 => ⟨S4x256x16, .f32⟩
  | _ => ⟨S4x512x256, .f32⟩

abbrev hbmTy0_43 (i : Nat) : BufTy := match i % 128 with
  | 0 => ⟨S4x256x16, .f32⟩
  | 1 => ⟨S_, .f32⟩
  | 2 => ⟨S4x256, .f32⟩
  | 3 => ⟨S_, .i32⟩
  | 4 => ⟨S1, .i32⟩
  | 5 => ⟨S4x512x256, .f32⟩
  | 6 => ⟨S4x256x16, .f32⟩
  | 7 => ⟨S4x256x16, .f32⟩
  | 8 => ⟨S4x1x256, .f32⟩
  | 9 => ⟨S4x256, .f32⟩
  | 10 => ⟨S4x256x1, .f32⟩
  | 11 => ⟨S4x1x16, .f32⟩
  | 12 => ⟨S4x16, .f32⟩
  | 13 => ⟨S4x1x16, .f32⟩
  | 14 => ⟨S4x256x16, .f32⟩
  | 15 => ⟨S4x256x16, .f32⟩
  | 16 => ⟨S4x256x16, .f32⟩
  | 17 => ⟨S4x256x16, .f32⟩
  | 18 => ⟨S4x1x16, .f32⟩
  | 19 => ⟨S4x16, .f32⟩
  | 20 => ⟨S4x1x16, .f32⟩
  | 21 => ⟨S4x256x16, .f32⟩
  | 22 => ⟨S4x256x16, .f32⟩
  | 23 => ⟨S_, .f32⟩
  | 24 => ⟨S4x256, .f32⟩
  | 25 => ⟨S_, .i32⟩
  | 26 => ⟨S1, .i32⟩
  | 27 => ⟨S4x512x256, .f32⟩
  | 28 => ⟨S4x256x16, .f32⟩
  | 29 => ⟨S4x256x16, .f32⟩
  | 30 => ⟨S4x1x256, .f32⟩
  | 31 => ⟨S4x256, .f32⟩
  | 32 => ⟨S4x256x1, .f32⟩
  | 33 => ⟨S4x1x16, .f32⟩
  | 34 => ⟨S4x16, .f32⟩
  | 35 => ⟨S4x1x16, .f32⟩
  | 36 => ⟨S4x256x16, .f32⟩
  | 37 => ⟨S4x256x16, .f32⟩
  | 38 => ⟨S4x256x16, .f32⟩
  | 39 => ⟨S4x256x16, .f32⟩
  | 40 => ⟨S4x1x16, .f32⟩
  | 41 => ⟨S4x16, .f32⟩
  | 42 => ⟨S4x1x16, .f32⟩
  | 43 => ⟨S4x256x16, .f32⟩
  | 44 => ⟨S4x256x16, .f32⟩
  | 45 => ⟨S_, .f32⟩
  | 46 => ⟨S4x256, .f32⟩
  | 47 => ⟨S_, .i32⟩
  | 48 => ⟨S1, .i32⟩
  | 49 => ⟨S4x512x256, .f32⟩
  | 50 => ⟨S4x256x16, .f32⟩
  | 51 => ⟨S4x256x16, .f32⟩
  | 52 => ⟨S4x1x256, .f32⟩
  | 53 => ⟨S4x256, .f32⟩
  | 54 => ⟨S4x256x1, .f32⟩
  | 55 => ⟨S4x1x16, .f32⟩
  | 56 => ⟨S4x16, .f32⟩
  | 57 => ⟨S4x1x16, .f32⟩
  | 58 => ⟨S4x256x16, .f32⟩
  | 59 => ⟨S4x256x16, .f32⟩
  | 60 => ⟨S4x256x16, .f32⟩
  | 61 => ⟨S4x256x16, .f32⟩
  | 62 => ⟨S4x1x16, .f32⟩
  | 63 => ⟨S4x16, .f32⟩
  | 64 => ⟨S4x1x16, .f32⟩
  | 65 => ⟨S4x256x16, .f32⟩
  | 66 => ⟨S4x256x16, .f32⟩
  | 67 => ⟨S_, .f32⟩
  | 68 => ⟨S4x256, .f32⟩
  | 69 => ⟨S_, .i32⟩
  | 70 => ⟨S1, .i32⟩
  | 71 => ⟨S4x512x256, .f32⟩
  | 72 => ⟨S4x256x16, .f32⟩
  | 73 => ⟨S4x256x16, .f32⟩
  | 74 => ⟨S4x1x256, .f32⟩
  | 75 => ⟨S4x256, .f32⟩
  | 76 => ⟨S4x256x1, .f32⟩
  | 77 => ⟨S4x1x16, .f32⟩
  | 78 => ⟨S4x16, .f32⟩
  | 79 => ⟨S4x1x16, .f32⟩
  | 80 => ⟨S4x256x16, .f32⟩
  | 81 => ⟨S4x256x16, .f32⟩
  | 82 => ⟨S4x256x16, .f32⟩
  | 83 => ⟨S4x256x16, .f32⟩
  | 84 => ⟨S4x1x16, .f32⟩
  | 85 => ⟨S4x16, .f32⟩
  | 86 => ⟨S4x1x16, .f32⟩
  | 87 => ⟨S4x256x16, .f32⟩
  | 88 => ⟨S4x256x16, .f32⟩
  | 89 => ⟨S_, .f32⟩
  | 90 => ⟨S4x256, .f32⟩
  | 91 => ⟨S_, .i32⟩
  | 92 => ⟨S1, .i32⟩
  | 93 => ⟨S4x512x256, .f32⟩
  | 94 => ⟨S4x256x16, .f32⟩
  | 95 => ⟨S4x256x16, .f32⟩
  | 96 => ⟨S4x1x256, .f32⟩
  | 97 => ⟨S4x256, .f32⟩
  | 98 => ⟨S4x256x1, .f32⟩
  | 99 => ⟨S4x1x16, .f32⟩
  | 100 => ⟨S4x16, .f32⟩
  | 101 => ⟨S4x1x16, .f32⟩
  | 102 => ⟨S4x256x16, .f32⟩
  | 103 => ⟨S4x256x16, .f32⟩
  | 104 => ⟨S4x256x16, .f32⟩
  | 105 => ⟨S4x256x16, .f32⟩
  | 106 => ⟨S4x1x16, .f32⟩
  | 107 => ⟨S4x16, .f32⟩
  | 108 => ⟨S4x1x16, .f32⟩
  | 109 => ⟨S4x256x16, .f32⟩
  | 110 => ⟨S4x256x16, .f32⟩
  | 111 => ⟨S_, .f32⟩
  | 112 => ⟨S4x256, .f32⟩
  | 113 => ⟨S_, .i32⟩
  | 114 => ⟨S1, .i32⟩
  | 115 => ⟨S4x512x256, .f32⟩
  | 116 => ⟨S4x256x16, .f32⟩
  | 117 => ⟨S4x256x16, .f32⟩
  | 118 => ⟨S4x1x256, .f32⟩
  | 119 => ⟨S4x256, .f32⟩
  | 120 => ⟨S4x256x1, .f32⟩
  | 121 => ⟨S4x1x16, .f32⟩
  | 122 => ⟨S4x16, .f32⟩
  | 123 => ⟨S4x1x16, .f32⟩
  | 124 => ⟨S4x256x16, .f32⟩
  | 125 => ⟨S4x256x16, .f32⟩
  | 126 => ⟨S4x256x16, .f32⟩
  | 127 => ⟨S4x256x16, .f32⟩
  | _ => ⟨S4x512x256, .f32⟩

abbrev hbmTy0_44 (i : Nat) : BufTy := match i % 128 with
  | 0 => ⟨S4x1x16, .f32⟩
  | 1 => ⟨S4x16, .f32⟩
  | 2 => ⟨S4x1x16, .f32⟩
  | 3 => ⟨S4x256x16, .f32⟩
  | 4 => ⟨S4x256x16, .f32⟩
  | 5 => ⟨S_, .f32⟩
  | 6 => ⟨S4x256, .f32⟩
  | 7 => ⟨S_, .i32⟩
  | 8 => ⟨S1, .i32⟩
  | 9 => ⟨S4x512x256, .f32⟩
  | 10 => ⟨S4x256x16, .f32⟩
  | 11 => ⟨S4x256x16, .f32⟩
  | 12 => ⟨S4x1x256, .f32⟩
  | 13 => ⟨S4x256, .f32⟩
  | 14 => ⟨S4x256x1, .f32⟩
  | 15 => ⟨S4x1x16, .f32⟩
  | 16 => ⟨S4x16, .f32⟩
  | 17 => ⟨S4x1x16, .f32⟩
  | 18 => ⟨S4x256x16, .f32⟩
  | 19 => ⟨S4x256x16, .f32⟩
  | 20 => ⟨S4x256x16, .f32⟩
  | 21 => ⟨S4x256x16, .f32⟩
  | 22 => ⟨S4x1x16, .f32⟩
  | 23 => ⟨S4x16, .f32⟩
  | 24 => ⟨S4x1x16, .f32⟩
  | 25 => ⟨S4x256x16, .f32⟩
  | 26 => ⟨S4x256x16, .f32⟩
  | 27 => ⟨S_, .f32⟩
  | 28 => ⟨S4x256, .f32⟩
  | 29 => ⟨S_, .i32⟩
  | 30 => ⟨S1, .i32⟩
  | 31 => ⟨S4x512x256, .f32⟩
  | 32 => ⟨S4x256x16, .f32⟩
  | 33 => ⟨S4x256x16, .f32⟩
  | 34 => ⟨S4x1x256, .f32⟩
  | 35 => ⟨S4x256, .f32⟩
  | 36 => ⟨S4x256x1, .f32⟩
  | 37 => ⟨S4x1x16, .f32⟩
  | 38 => ⟨S4x16, .f32⟩
  | 39 => ⟨S4x1x16, .f32⟩
  | 40 => ⟨S4x256x16, .f32⟩
  | 41 => ⟨S4x256x16, .f32⟩
  | 42 => ⟨S4x256x16, .f32⟩
  | 43 => ⟨S4x256x16, .f32⟩
  | 44 => ⟨S4x1x16, .f32⟩
  | 45 => ⟨S4x16, .f32⟩
  | 46 => ⟨S4x1x16, .f32⟩
  | 47 => ⟨S4x256x16, .f32⟩
  | 48 => ⟨S4x256x16, .f32⟩
  | 49 => ⟨S_, .f32⟩
  | 50 => ⟨S4x256, .f32⟩
  | 51 => ⟨S_, .i32⟩
  | 52 => ⟨S1, .i32⟩
  | 53 => ⟨S4x512x256, .f32⟩
  | 54 => ⟨S4x256x16, .f32⟩
  | 55 => ⟨S4x256x16, .f32⟩
  | 56 => ⟨S4x1x256, .f32⟩
  | 57 => ⟨S4x256, .f32⟩
  | 58 => ⟨S4x256x1, .f32⟩
  | 59 => ⟨S4x1x16, .f32⟩
  | 60 => ⟨S4x16, .f32⟩
  | 61 => ⟨S4x1x16, .f32⟩
  | 62 => ⟨S4x256x16, .f32⟩
  | 63 => ⟨S4x256x16, .f32⟩
  | 64 => ⟨S4x256x16, .f32⟩
  | 65 => ⟨S4x256x16, .f32⟩
  | 66 => ⟨S4x1x16, .f32⟩
  | 67 => ⟨S4x16, .f32⟩
  | 68 => ⟨S4x1x16, .f32⟩
  | 69 => ⟨S4x256x16, .f32⟩
  | 70 => ⟨S4x256x16, .f32⟩
  | 71 => ⟨S_, .f32⟩
  | 72 => ⟨S4x256, .f32⟩
  | 73 => ⟨S_, .i32⟩
  | 74 => ⟨S1, .i32⟩
  | 75 => ⟨S4x512x256, .f32⟩
  | 76 => ⟨S4x256x16, .f32⟩
  | 77 => ⟨S4x256x16, .f32⟩
  | 78 => ⟨S4x1x256, .f32⟩
  | 79 => ⟨S4x256, .f32⟩
  | 80 => ⟨S4x256x1, .f32⟩
  | 81 => ⟨S4x1x16, .f32⟩
  | 82 => ⟨S4x16, .f32⟩
  | 83 => ⟨S4x1x16, .f32⟩
  | 84 => ⟨S4x256x16, .f32⟩
  | 85 => ⟨S4x256x16, .f32⟩
  | 86 => ⟨S4x256x16, .f32⟩
  | 87 => ⟨S4x256x16, .f32⟩
  | 88 => ⟨S4x1x16, .f32⟩
  | 89 => ⟨S4x16, .f32⟩
  | 90 => ⟨S4x1x16, .f32⟩
  | 91 => ⟨S4x256x16, .f32⟩
  | 92 => ⟨S4x256x16, .f32⟩
  | 93 => ⟨S_, .f32⟩
  | 94 => ⟨S4x256, .f32⟩
  | 95 => ⟨S_, .i32⟩
  | 96 => ⟨S1, .i32⟩
  | 97 => ⟨S4x512x256, .f32⟩
  | 98 => ⟨S4x256x16, .f32⟩
  | 99 => ⟨S4x256x16, .f32⟩
  | 100 => ⟨S4x1x256, .f32⟩
  | 101 => ⟨S4x256, .f32⟩
  | 102 => ⟨S4x256x1, .f32⟩
  | 103 => ⟨S4x1x16, .f32⟩
  | 104 => ⟨S4x16, .f32⟩
  | 105 => ⟨S4x1x16, .f32⟩
  | 106 => ⟨S4x256x16, .f32⟩
  | 107 => ⟨S4x256x16, .f32⟩
  | 108 => ⟨S4x256x16, .f32⟩
  | 109 => ⟨S4x256x16, .f32⟩
  | 110 => ⟨S4x1x16, .f32⟩
  | 111 => ⟨S4x16, .f32⟩
  | 112 => ⟨S4x1x16, .f32⟩
  | 113 => ⟨S4x256x16, .f32⟩
  | 114 => ⟨S4x256x16, .f32⟩
  | 115 => ⟨S_, .f32⟩
  | 116 => ⟨S4x256, .f32⟩
  | 117 => ⟨S_, .i32⟩
  | 118 => ⟨S1, .i32⟩
  | 119 => ⟨S4x512x256, .f32⟩
  | 120 => ⟨S4x256x16, .f32⟩
  | 121 => ⟨S4x256x16, .f32⟩
  | 122 => ⟨S4x1x256, .f32⟩
  | 123 => ⟨S4x256, .f32⟩
  | 124 => ⟨S4x256x1, .f32⟩
  | 125 => ⟨S4x1x16, .f32⟩
  | 126 => ⟨S4x16, .f32⟩
  | 127 => ⟨S4x1x16, .f32⟩
  | _ => ⟨S4x512x256, .f32⟩

abbrev hbmTy0_45 (i : Nat) : BufTy := match i % 128 with
  | 0 => ⟨S4x256x16, .f32⟩
  | 1 => ⟨S4x256x16, .f32⟩
  | 2 => ⟨S4x256x16, .f32⟩
  | 3 => ⟨S4x256x16, .f32⟩
  | 4 => ⟨S4x1x16, .f32⟩
  | 5 => ⟨S4x16, .f32⟩
  | 6 => ⟨S4x1x16, .f32⟩
  | 7 => ⟨S4x256x16, .f32⟩
  | 8 => ⟨S4x256x16, .f32⟩
  | 9 => ⟨S_, .f32⟩
  | 10 => ⟨S4x256, .f32⟩
  | 11 => ⟨S_, .i32⟩
  | 12 => ⟨S1, .i32⟩
  | 13 => ⟨S4x512x256, .f32⟩
  | 14 => ⟨S4x256x16, .f32⟩
  | 15 => ⟨S4x256x16, .f32⟩
  | 16 => ⟨S4x1x256, .f32⟩
  | 17 => ⟨S4x256, .f32⟩
  | 18 => ⟨S4x256x1, .f32⟩
  | 19 => ⟨S4x1x16, .f32⟩
  | 20 => ⟨S4x16, .f32⟩
  | 21 => ⟨S4x1x16, .f32⟩
  | 22 => ⟨S4x256x16, .f32⟩
  | 23 => ⟨S4x256x16, .f32⟩
  | 24 => ⟨S4x256x16, .f32⟩
  | 25 => ⟨S4x256x16, .f32⟩
  | 26 => ⟨S4x1x16, .f32⟩
  | 27 => ⟨S4x16, .f32⟩
  | 28 => ⟨S4x1x16, .f32⟩
  | 29 => ⟨S4x256x16, .f32⟩
  | 30 => ⟨S4x256x16, .f32⟩
  | 31 => ⟨S_, .f32⟩
  | 32 => ⟨S4x256, .f32⟩
  | 33 => ⟨S_, .i32⟩
  | 34 => ⟨S1, .i32⟩
  | 35 => ⟨S4x512x256, .f32⟩
  | 36 => ⟨S4x256x16, .f32⟩
  | 37 => ⟨S4x256x16, .f32⟩
  | 38 => ⟨S4x1x256, .f32⟩
  | 39 => ⟨S4x256, .f32⟩
  | 40 => ⟨S4x256x1, .f32⟩
  | 41 => ⟨S4x1x16, .f32⟩
  | 42 => ⟨S4x16, .f32⟩
  | 43 => ⟨S4x1x16, .f32⟩
  | 44 => ⟨S4x256x16, .f32⟩
  | 45 => ⟨S4x256x16, .f32⟩
  | 46 => ⟨S4x256x16, .f32⟩
  | 47 => ⟨S4x256x16, .f32⟩
  | 48 => ⟨S4x1x16, .f32⟩
  | 49 => ⟨S4x16, .f32⟩
  | 50 => ⟨S4x1x16, .f32⟩
  | 51 => ⟨S4x256x16, .f32⟩
  | 52 => ⟨S4x256x16, .f32⟩
  | 53 => ⟨S_, .f32⟩
  | 54 => ⟨S4x256, .f32⟩
  | 55 => ⟨S_, .i32⟩
  | 56 => ⟨S1, .i32⟩
  | 57 => ⟨S4x512x256, .f32⟩
  | 58 => ⟨S4x256x16, .f32⟩
  | 59 => ⟨S4x256x16, .f32⟩
  | 60 => ⟨S4x1x256, .f32⟩
  | 61 => ⟨S4x256, .f32⟩
  | 62 => ⟨S4x256x1, .f32⟩
  | 63 => ⟨S4x1x16, .f32⟩
  | 64 => ⟨S4x16, .f32⟩
  | 65 => ⟨S4x1x16, .f32⟩
  | 66 => ⟨S4x256x16, .f32⟩
  | 67 => ⟨S4x256x16, .f32⟩
  | 68 => ⟨S4x256x16, .f32⟩
  | 69 => ⟨S4x256x16, .f32⟩
  | 70 => ⟨S4x1x16, .f32⟩
  | 71 => ⟨S4x16, .f32⟩
  | 72 => ⟨S4x1x16, .f32⟩
  | 73 => ⟨S4x256x16, .f32⟩
  | 74 => ⟨S4x256x16, .f32⟩
  | 75 => ⟨S_, .f32⟩
  | 76 => ⟨S4x256, .f32⟩
  | 77 => ⟨S_, .i32⟩
  | 78 => ⟨S1, .i32⟩
  | 79 => ⟨S4x512x256, .f32⟩
  | 80 => ⟨S4x256x16, .f32⟩
  | 81 => ⟨S4x256x16, .f32⟩
  | 82 => ⟨S4x1x256, .f32⟩
  | 83 => ⟨S4x256, .f32⟩
  | 84 => ⟨S4x256x1, .f32⟩
  | 85 => ⟨S4x1x16, .f32⟩
  | 86 => ⟨S4x16, .f32⟩
  | 87 => ⟨S4x1x16, .f32⟩
  | 88 => ⟨S4x256x16, .f32⟩
  | 89 => ⟨S4x256x16, .f32⟩
  | 90 => ⟨S4x256x16, .f32⟩
  | 91 => ⟨S4x256x16, .f32⟩
  | 92 => ⟨S4x1x16, .f32⟩
  | 93 => ⟨S4x16, .f32⟩
  | 94 => ⟨S4x1x16, .f32⟩
  | 95 => ⟨S4x256x16, .f32⟩
  | 96 => ⟨S4x256x16, .f32⟩
  | 97 => ⟨S_, .f32⟩
  | 98 => ⟨S4x256, .f32⟩
  | 99 => ⟨S_, .i32⟩
  | 100 => ⟨S1, .i32⟩
  | 101 => ⟨S4x512x256, .f32⟩
  | 102 => ⟨S4x256x16, .f32⟩
  | 103 => ⟨S4x256x16, .f32⟩
  | 104 => ⟨S4x1x256, .f32⟩
  | 105 => ⟨S4x256, .f32⟩
  | 106 => ⟨S4x256x1, .f32⟩
  | 107 => ⟨S4x1x16, .f32⟩
  | 108 => ⟨S4x16, .f32⟩
  | 109 => ⟨S4x1x16, .f32⟩
  | 110 => ⟨S4x256x16, .f32⟩
  | 111 => ⟨S4x256x16, .f32⟩
  | 112 => ⟨S4x256x16, .f32⟩
  | 113 => ⟨S4x256x16, .f32⟩
  | 114 => ⟨S4x1x16, .f32⟩
  | 115 => ⟨S4x16, .f32⟩
  | 116 => ⟨S4x1x16, .f32⟩
  | 117 => ⟨S4x256x16, .f32⟩
  | 118 => ⟨S4x256x16, .f32⟩
  | 119 => ⟨S_, .f32⟩
  | 120 => ⟨S4x256, .f32⟩
  | 121 => ⟨S_, .i32⟩
  | 122 => ⟨S1, .i32⟩
  | 123 => ⟨S4x512x256, .f32⟩
  | 124 => ⟨S4x256x16, .f32⟩
  | 125 => ⟨S4x256x16, .f32⟩
  | 126 => ⟨S4x1x256, .f32⟩
  | 127 => ⟨S4x256, .f32⟩
  | _ => ⟨S4x512x256, .f32⟩

abbrev hbmTy0_46 (i : Nat) : BufTy := match i % 128 with
  | 0 => ⟨S4x256x1, .f32⟩
  | 1 => ⟨S4x1x16, .f32⟩
  | 2 => ⟨S4x16, .f32⟩
  | 3 => ⟨S4x1x16, .f32⟩
  | 4 => ⟨S4x256x16, .f32⟩
  | 5 => ⟨S4x256x16, .f32⟩
  | 6 => ⟨S4x256x16, .f32⟩
  | 7 => ⟨S4x256x16, .f32⟩
  | 8 => ⟨S4x1x16, .f32⟩
  | 9 => ⟨S4x16, .f32⟩
  | 10 => ⟨S4x1x16, .f32⟩
  | 11 => ⟨S4x256x16, .f32⟩
  | 12 => ⟨S4x256x16, .f32⟩
  | 13 => ⟨S_, .f32⟩
  | 14 => ⟨S4x256, .f32⟩
  | 15 => ⟨S_, .i32⟩
  | 16 => ⟨S1, .i32⟩
  | 17 => ⟨S4x512x256, .f32⟩
  | 18 => ⟨S4x256x16, .f32⟩
  | 19 => ⟨S4x256x16, .f32⟩
  | 20 => ⟨S4x1x256, .f32⟩
  | 21 => ⟨S4x256, .f32⟩
  | 22 => ⟨S4x256x1, .f32⟩
  | 23 => ⟨S4x1x16, .f32⟩
  | 24 => ⟨S4x16, .f32⟩
  | 25 => ⟨S4x1x16, .f32⟩
  | 26 => ⟨S4x256x16, .f32⟩
  | 27 => ⟨S4x256x16, .f32⟩
  | 28 => ⟨S4x256x16, .f32⟩
  | 29 => ⟨S4x256x16, .f32⟩
  | 30 => ⟨S4x1x16, .f32⟩
  | 31 => ⟨S4x16, .f32⟩
  | 32 => ⟨S4x1x16, .f32⟩
  | 33 => ⟨S4x256x16, .f32⟩
  | 34 => ⟨S4x256x16, .f32⟩
  | 35 => ⟨S_, .f32⟩
  | 36 => ⟨S4x256, .f32⟩
  | 37 => ⟨S_, .i32⟩
  | 38 => ⟨S1, .i32⟩
  | 39 => ⟨S4x512x256, .f32⟩
  | 40 => ⟨S4x256x16, .f32⟩
  | 41 => ⟨S4x256x16, .f32⟩
  | 42 => ⟨S4x1x256, .f32⟩
  | 43 => ⟨S4x256, .f32⟩
  | 44 => ⟨S4x256x1, .f32⟩
  | 45 => ⟨S4x1x16, .f32⟩
  | 46 => ⟨S4x16, .f32⟩
  | 47 => ⟨S4x1x16, .f32⟩
  | 48 => ⟨S4x256x16, .f32⟩
  | 49 => ⟨S4x256x16, .f32⟩
  | 50 => ⟨S4x256x16, .f32⟩
  | 51 => ⟨S4x256x16, .f32⟩
  | 52 => ⟨S4x1x16, .f32⟩
  | 53 => ⟨S4x16, .f32⟩
  | 54 => ⟨S4x1x16, .f32⟩
  | 55 => ⟨S4x256x16, .f32⟩
  | 56 => ⟨S4x256x16, .f32⟩
  | 57 => ⟨S_, .f32⟩
  | 58 => ⟨S4x256, .f32⟩
  | 59 => ⟨S_, .i32⟩
  | 60 => ⟨S1, .i32⟩
  | 61 => ⟨S4x512x256, .f32⟩
  | 62 => ⟨S4x256x16, .f32⟩
  | 63 => ⟨S4x256x16, .f32⟩
  | 64 => ⟨S4x1x256, .f32⟩
  | 65 => ⟨S4x256, .f32⟩
  | 66 => ⟨S4x256x1, .f32⟩
  | 67 => ⟨S4x1x16, .f32⟩
  | 68 => ⟨S4x16, .f32⟩
  | 69 => ⟨S4x1x16, .f32⟩
  | 70 => ⟨S4x256x16, .f32⟩
  | 71 => ⟨S4x256x16, .f32⟩
  | 72 => ⟨S4x256x16, .f32⟩
  | 73 => ⟨S4x256x16, .f32⟩
  | 74 => ⟨S4x1x16, .f32⟩
  | 75 => ⟨S4x16, .f32⟩
  | 76 => ⟨S4x1x16, .f32⟩
  | 77 => ⟨S4x256x16, .f32⟩
  | 78 => ⟨S4x256x16, .f32⟩
  | 79 => ⟨S_, .f32⟩
  | 80 => ⟨S4x256, .f32⟩
  | 81 => ⟨S_, .i32⟩
  | 82 => ⟨S1, .i32⟩
  | 83 => ⟨S4x512x256, .f32⟩
  | 84 => ⟨S4x256x16, .f32⟩
  | 85 => ⟨S4x256x16, .f32⟩
  | 86 => ⟨S4x1x256, .f32⟩
  | 87 => ⟨S4x256, .f32⟩
  | 88 => ⟨S4x256x1, .f32⟩
  | 89 => ⟨S4x1x16, .f32⟩
  | 90 => ⟨S4x16, .f32⟩
  | 91 => ⟨S4x1x16, .f32⟩
  | 92 => ⟨S4x256x16, .f32⟩
  | 93 => ⟨S4x256x16, .f32⟩
  | 94 => ⟨S4x256x16, .f32⟩
  | 95 => ⟨S4x256x16, .f32⟩
  | 96 => ⟨S4x1x16, .f32⟩
  | 97 => ⟨S4x16, .f32⟩
  | 98 => ⟨S4x1x16, .f32⟩
  | 99 => ⟨S4x256x16, .f32⟩
  | 100 => ⟨S4x256x16, .f32⟩
  | 101 => ⟨S_, .f32⟩
  | 102 => ⟨S4x256, .f32⟩
  | 103 => ⟨S_, .i32⟩
  | 104 => ⟨S1, .i32⟩
  | 105 => ⟨S4x512x256, .f32⟩
  | 106 => ⟨S4x256x16, .f32⟩
  | 107 => ⟨S4x256x16, .f32⟩
  | 108 => ⟨S4x1x256, .f32⟩
  | 109 => ⟨S4x256, .f32⟩
  | 110 => ⟨S4x256x1, .f32⟩
  | 111 => ⟨S4x1x16, .f32⟩
  | 112 => ⟨S4x16, .f32⟩
  | 113 => ⟨S4x1x16, .f32⟩
  | 114 => ⟨S4x256x16, .f32⟩
  | 115 => ⟨S4x256x16, .f32⟩
  | 116 => ⟨S4x256x16, .f32⟩
  | 117 => ⟨S4x256x16, .f32⟩
  | 118 => ⟨S4x1x16, .f32⟩
  | 119 => ⟨S4x16, .f32⟩
  | 120 => ⟨S4x1x16, .f32⟩
  | 121 => ⟨S4x256x16, .f32⟩
  | 122 => ⟨S4x256x16, .f32⟩
  | 123 => ⟨S_, .f32⟩
  | 124 => ⟨S4x256, .f32⟩
  | 125 => ⟨S_, .i32⟩
  | 126 => ⟨S1, .i32⟩
  | 127 => ⟨S4x512x256, .f32⟩
  | _ => ⟨S4x512x256, .f32⟩

abbrev hbmTy0_47 (i : Nat) : BufTy := match i % 128 with
  | 0 => ⟨S4x256x16, .f32⟩
  | 1 => ⟨S4x256x16, .f32⟩
  | 2 => ⟨S4x1x256, .f32⟩
  | 3 => ⟨S4x256, .f32⟩
  | 4 => ⟨S4x256x1, .f32⟩
  | 5 => ⟨S4x1x16, .f32⟩
  | 6 => ⟨S4x16, .f32⟩
  | 7 => ⟨S4x1x16, .f32⟩
  | 8 => ⟨S4x256x16, .f32⟩
  | 9 => ⟨S4x256x16, .f32⟩
  | 10 => ⟨S4x256x16, .f32⟩
  | 11 => ⟨S4x256x16, .f32⟩
  | 12 => ⟨S4x1x16, .f32⟩
  | 13 => ⟨S4x16, .f32⟩
  | 14 => ⟨S4x1x16, .f32⟩
  | 15 => ⟨S4x256x16, .f32⟩
  | 16 => ⟨S4x256x16, .f32⟩
  | 17 => ⟨S_, .f32⟩
  | 18 => ⟨S4x256, .f32⟩
  | 19 => ⟨S_, .i32⟩
  | 20 => ⟨S1, .i32⟩
  | 21 => ⟨S4x512x256, .f32⟩
  | 22 => ⟨S4x256x16, .f32⟩
  | 23 => ⟨S4x256x16, .f32⟩
  | 24 => ⟨S4x1x256, .f32⟩
  | 25 => ⟨S4x256, .f32⟩
  | 26 => ⟨S4x256x1, .f32⟩
  | 27 => ⟨S4x1x16, .f32⟩
  | 28 => ⟨S4x16, .f32⟩
  | 29 => ⟨S4x1x16, .f32⟩
  | 30 => ⟨S4x256x16, .f32⟩
  | 31 => ⟨S4x256x16, .f32⟩
  | 32 => ⟨S4x256x16, .f32⟩
  | 33 => ⟨S4x256x16, .f32⟩
  | 34 => ⟨S4x1x16, .f32⟩
  | 35 => ⟨S4x16, .f32⟩
  | 36 => ⟨S4x1x16, .f32⟩
  | 37 => ⟨S4x256x16, .f32⟩
  | 38 => ⟨S4x256x16, .f32⟩
  | 39 => ⟨S_, .f32⟩
  | 40 => ⟨S4x256, .f32⟩
  | 41 => ⟨S_, .i32⟩
  | 42 => ⟨S1, .i32⟩
  | 43 => ⟨S4x512x256, .f32⟩
  | 44 => ⟨S4x256x16, .f32⟩
  | 45 => ⟨S4x256x16, .f32⟩
  | 46 => ⟨S4x1x256, .f32⟩
  | 47 => ⟨S4x256, .f32⟩
  | 48 => ⟨S4x256x1, .f32⟩
  | 49 => ⟨S4x1x16, .f32⟩
  | 50 => ⟨S4x16, .f32⟩
  | 51 => ⟨S4x1x16, .f32⟩
  | 52 => ⟨S4x256x16, .f32⟩
  | 53 => ⟨S4x256x16, .f32⟩
  | 54 => ⟨S4x256x16, .f32⟩
  | 55 => ⟨S4x256x16, .f32⟩
  | 56 => ⟨S4x1x16, .f32⟩
  | 57 => ⟨S4x16, .f32⟩
  | 58 => ⟨S4x1x16, .f32⟩
  | 59 => ⟨S4x256x16, .f32⟩
  | 60 => ⟨S4x256x16, .f32⟩
  | 61 => ⟨S_, .f32⟩
  | 62 => ⟨S4x256, .f32⟩
  | 63 => ⟨S_, .i32⟩
  | 64 => ⟨S1, .i32⟩
  | 65 => ⟨S4x512x256, .f32⟩
  | 66 => ⟨S4x256x16, .f32⟩
  | 67 => ⟨S4x256x16, .f32⟩
  | 68 => ⟨S4x1x256, .f32⟩
  | 69 => ⟨S4x256, .f32⟩
  | 70 => ⟨S4x256x1, .f32⟩
  | 71 => ⟨S4x1x16, .f32⟩
  | 72 => ⟨S4x16, .f32⟩
  | 73 => ⟨S4x1x16, .f32⟩
  | 74 => ⟨S4x256x16, .f32⟩
  | 75 => ⟨S4x256x16, .f32⟩
  | 76 => ⟨S4x256x16, .f32⟩
  | 77 => ⟨S4x256x16, .f32⟩
  | 78 => ⟨S4x1x16, .f32⟩
  | 79 => ⟨S4x16, .f32⟩
  | 80 => ⟨S4x1x16, .f32⟩
  | 81 => ⟨S4x256x16, .f32⟩
  | 82 => ⟨S4x256x16, .f32⟩
  | 83 => ⟨S_, .f32⟩
  | 84 => ⟨S4x256, .f32⟩
  | 85 => ⟨S_, .i32⟩
  | 86 => ⟨S1, .i32⟩
  | 87 => ⟨S4x512x256, .f32⟩
  | 88 => ⟨S4x256x16, .f32⟩
  | 89 => ⟨S4x256x16, .f32⟩
  | 90 => ⟨S4x1x256, .f32⟩
  | 91 => ⟨S4x256, .f32⟩
  | 92 => ⟨S4x256x1, .f32⟩
  | 93 => ⟨S4x1x16, .f32⟩
  | 94 => ⟨S4x16, .f32⟩
  | 95 => ⟨S4x1x16, .f32⟩
  | 96 => ⟨S4x256x16, .f32⟩
  | 97 => ⟨S4x256x16, .f32⟩
  | 98 => ⟨S4x256x16, .f32⟩
  | 99 => ⟨S4x256x16, .f32⟩
  | 100 => ⟨S4x1x16, .f32⟩
  | 101 => ⟨S4x16, .f32⟩
  | 102 => ⟨S4x1x16, .f32⟩
  | 103 => ⟨S4x256x16, .f32⟩
  | 104 => ⟨S4x256x16, .f32⟩
  | 105 => ⟨S_, .f32⟩
  | 106 => ⟨S4x256, .f32⟩
  | 107 => ⟨S_, .i32⟩
  | 108 => ⟨S1, .i32⟩
  | 109 => ⟨S4x512x256, .f32⟩
  | 110 => ⟨S4x256x16, .f32⟩
  | 111 => ⟨S4x256x16, .f32⟩
  | 112 => ⟨S4x1x256, .f32⟩
  | 113 => ⟨S4x256, .f32⟩
  | 114 => ⟨S4x256x1, .f32⟩
  | 115 => ⟨S4x1x16, .f32⟩
  | 116 => ⟨S4x16, .f32⟩
  | 117 => ⟨S4x1x16, .f32⟩
  | 118 => ⟨S4x256x16, .f32⟩
  | 119 => ⟨S4x256x16, .f32⟩
  | 120 => ⟨S4x256x16, .f32⟩
  | 121 => ⟨S4x256x16, .f32⟩
  | 122 => ⟨S4x1x16, .f32⟩
  | 123 => ⟨S4x16, .f32⟩
  | 124 => ⟨S4x1x16, .f32⟩
  | 125 => ⟨S4x256x16, .f32⟩
  | 126 => ⟨S4x256x16, .f32⟩
  | 127 => ⟨S_, .f32⟩
  | _ => ⟨S4x512x256, .f32⟩

abbrev hbmTy0_48 (i : Nat) : BufTy := match i % 128 with
  | 0 => ⟨S4x256, .f32⟩
  | 1 => ⟨S_, .i32⟩
  | 2 => ⟨S1, .i32⟩
  | 3 => ⟨S4x512x256, .f32⟩
  | 4 => ⟨S4x256x16, .f32⟩
  | 5 => ⟨S4x256x16, .f32⟩
  | 6 => ⟨S4x1x256, .f32⟩
  | 7 => ⟨S4x256, .f32⟩
  | 8 => ⟨S4x256x1, .f32⟩
  | 9 => ⟨S4x1x16, .f32⟩
  | 10 => ⟨S4x16, .f32⟩
  | 11 => ⟨S4x1x16, .f32⟩
  | 12 => ⟨S4x256x16, .f32⟩
  | 13 => ⟨S4x256x16, .f32⟩
  | 14 => ⟨S4x256x16, .f32⟩
  | 15 => ⟨S4x256x16, .f32⟩
  | 16 => ⟨S4x1x16, .f32⟩
  | 17 => ⟨S4x16, .f32⟩
  | 18 => ⟨S4x1x16, .f32⟩
  | 19 => ⟨S4x256x16, .f32⟩
  | 20 => ⟨S4x256x16, .f32⟩
  | 21 => ⟨S_, .f32⟩
  | 22 => ⟨S4x256, .f32⟩
  | 23 => ⟨S_, .i32⟩
  | 24 => ⟨S1, .i32⟩
  | 25 => ⟨S4x512x256, .f32⟩
  | 26 => ⟨S4x256x16, .f32⟩
  | 27 => ⟨S4x256x16, .f32⟩
  | 28 => ⟨S4x1x256, .f32⟩
  | 29 => ⟨S4x256, .f32⟩
  | 30 => ⟨S4x256x1, .f32⟩
  | 31 => ⟨S4x1x16, .f32⟩
  | 32 => ⟨S4x16, .f32⟩
  | 33 => ⟨S4x1x16, .f32⟩
  | 34 => ⟨S4x256x16, .f32⟩
  | 35 => ⟨S4x256x16, .f32⟩
  | 36 => ⟨S4x256x16, .f32⟩
  | 37 => ⟨S4x256x16, .f32⟩
  | 38 => ⟨S4x1x16, .f32⟩
  | 39 => ⟨S4x16, .f32⟩
  | 40 => ⟨S4x1x16, .f32⟩
  | 41 => ⟨S4x256x16, .f32⟩
  | 42 => ⟨S4x256x16, .f32⟩
  | 43 => ⟨S_, .f32⟩
  | 44 => ⟨S4x256, .f32⟩
  | 45 => ⟨S_, .i32⟩
  | 46 => ⟨S1, .i32⟩
  | 47 => ⟨S4x512x256, .f32⟩
  | 48 => ⟨S4x256x16, .f32⟩
  | 49 => ⟨S4x256x16, .f32⟩
  | 50 => ⟨S4x1x256, .f32⟩
  | 51 => ⟨S4x256, .f32⟩
  | 52 => ⟨S4x256x1, .f32⟩
  | 53 => ⟨S4x1x16, .f32⟩
  | 54 => ⟨S4x16, .f32⟩
  | 55 => ⟨S4x1x16, .f32⟩
  | 56 => ⟨S4x256x16, .f32⟩
  | 57 => ⟨S4x256x16, .f32⟩
  | 58 => ⟨S4x256x16, .f32⟩
  | 59 => ⟨S4x256x16, .f32⟩
  | 60 => ⟨S4x1x16, .f32⟩
  | 61 => ⟨S4x16, .f32⟩
  | 62 => ⟨S4x1x16, .f32⟩
  | 63 => ⟨S4x256x16, .f32⟩
  | 64 => ⟨S4x256x16, .f32⟩
  | 65 => ⟨S_, .f32⟩
  | 66 => ⟨S4x256, .f32⟩
  | 67 => ⟨S_, .i32⟩
  | 68 => ⟨S1, .i32⟩
  | 69 => ⟨S4x512x256, .f32⟩
  | 70 => ⟨S4x256x16, .f32⟩
  | 71 => ⟨S4x256x16, .f32⟩
  | 72 => ⟨S4x1x256, .f32⟩
  | 73 => ⟨S4x256, .f32⟩
  | 74 => ⟨S4x256x1, .f32⟩
  | 75 => ⟨S4x1x16, .f32⟩
  | 76 => ⟨S4x16, .f32⟩
  | 77 => ⟨S4x1x16, .f32⟩
  | 78 => ⟨S4x256x16, .f32⟩
  | 79 => ⟨S4x256x16, .f32⟩
  | 80 => ⟨S4x256x16, .f32⟩
  | 81 => ⟨S4x256x16, .f32⟩
  | 82 => ⟨S4x1x16, .f32⟩
  | 83 => ⟨S4x16, .f32⟩
  | 84 => ⟨S4x1x16, .f32⟩
  | 85 => ⟨S4x256x16, .f32⟩
  | 86 => ⟨S4x256x16, .f32⟩
  | 87 => ⟨S_, .f32⟩
  | 88 => ⟨S4x256, .f32⟩
  | 89 => ⟨S_, .i32⟩
  | 90 => ⟨S1, .i32⟩
  | 91 => ⟨S4x512x256, .f32⟩
  | 92 => ⟨S4x256x16, .f32⟩
  | 93 => ⟨S4x256x16, .f32⟩
  | 94 => ⟨S4x1x256, .f32⟩
  | 95 => ⟨S4x256, .f32⟩
  | 96 => ⟨S4x256x1, .f32⟩
  | 97 => ⟨S4x1x16, .f32⟩
  | 98 => ⟨S4x16, .f32⟩
  | 99 => ⟨S4x1x16, .f32⟩
  | 100 => ⟨S4x256x16, .f32⟩
  | 101 => ⟨S4x256x16, .f32⟩
  | 102 => ⟨S4x256x16, .f32⟩
  | 103 => ⟨S4x256x16, .f32⟩
  | 104 => ⟨S4x1x16, .f32⟩
  | 105 => ⟨S4x16, .f32⟩
  | 106 => ⟨S4x1x16, .f32⟩
  | 107 => ⟨S4x256x16, .f32⟩
  | 108 => ⟨S4x256x16, .f32⟩
  | 109 => ⟨S_, .f32⟩
  | 110 => ⟨S4x256, .f32⟩
  | 111 => ⟨S_, .i32⟩
  | 112 => ⟨S1, .i32⟩
  | 113 => ⟨S4x512x256, .f32⟩
  | 114 => ⟨S4x256x16, .f32⟩
  | 115 => ⟨S4x256x16, .f32⟩
  | 116 => ⟨S4x1x256, .f32⟩
  | 117 => ⟨S4x256, .f32⟩
  | 118 => ⟨S4x256x1, .f32⟩
  | 119 => ⟨S4x1x16, .f32⟩
  | 120 => ⟨S4x16, .f32⟩
  | 121 => ⟨S4x1x16, .f32⟩
  | 122 => ⟨S4x256x16, .f32⟩
  | 123 => ⟨S4x256x16, .f32⟩
  | 124 => ⟨S4x256x16, .f32⟩
  | 125 => ⟨S4x256x16, .f32⟩
  | 126 => ⟨S4x1x16, .f32⟩
  | 127 => ⟨S4x16, .f32⟩
  | _ => ⟨S4x512x256, .f32⟩

abbrev hbmTy0_49 (i : Nat) : BufTy := match i % 128 with
  | 0 => ⟨S4x1x16, .f32⟩
  | 1 => ⟨S4x256x16, .f32⟩
  | 2 => ⟨S4x256x16, .f32⟩
  | 3 => ⟨S_, .f32⟩
  | 4 => ⟨S4x256, .f32⟩
  | 5 => ⟨S_, .i32⟩
  | 6 => ⟨S1, .i32⟩
  | 7 => ⟨S4x512x256, .f32⟩
  | 8 => ⟨S4x256x16, .f32⟩
  | 9 => ⟨S4x256x16, .f32⟩
  | 10 => ⟨S4x1x256, .f32⟩
  | 11 => ⟨S4x256, .f32⟩
  | 12 => ⟨S4x256x1, .f32⟩
  | 13 => ⟨S4x1x16, .f32⟩
  | 14 => ⟨S4x16, .f32⟩
  | 15 => ⟨S4x1x16, .f32⟩
  | 16 => ⟨S4x256x16, .f32⟩
  | 17 => ⟨S4x256x16, .f32⟩
  | 18 => ⟨S4x256x16, .f32⟩
  | 19 => ⟨S4x256x16, .f32⟩
  | 20 => ⟨S4x1x16, .f32⟩
  | 21 => ⟨S4x16, .f32⟩
  | 22 => ⟨S4x1x16, .f32⟩
  | 23 => ⟨S4x256x16, .f32⟩
  | 24 => ⟨S4x256x16, .f32⟩
  | 25 => ⟨S_, .f32⟩
  | 26 => ⟨S4x256, .f32⟩
  | 27 => ⟨S_, .i32⟩
  | 28 => ⟨S1, .i32⟩
  | 29 => ⟨S4x512x256, .f32⟩
  | 30 => ⟨S4x256x16, .f32⟩
  | 31 => ⟨S4x256x16, .f32⟩
  | 32 => ⟨S4x1x256, .f32⟩
  | 33 => ⟨S4x256, .f32⟩
  | 34 => ⟨S4x256x1, .f32⟩
  | 35 => ⟨S4x1x16, .f32⟩
  | 36 => ⟨S4x16, .f32⟩
  | 37 => ⟨S4x1x16, .f32⟩
  | 38 => ⟨S4x256x16, .f32⟩
  | 39 => ⟨S4x256x16, .f32⟩
  | 40 => ⟨S4x256x16, .f32⟩
  | 41 => ⟨S4x256x16, .f32⟩
  | 42 => ⟨S4x1x16, .f32⟩
  | 43 => ⟨S4x16, .f32⟩
  | 44 => ⟨S4x1x16, .f32⟩
  | 45 => ⟨S4x256x16, .f32⟩
  | 46 => ⟨S4x256x16, .f32⟩
  | 47 => ⟨S_, .f32⟩
  | 48 => ⟨S4x256, .f32⟩
  | 49 => ⟨S_, .i32⟩
  | 50 => ⟨S1, .i32⟩
  | 51 => ⟨S4x512x256, .f32⟩
  | 52 => ⟨S4x256x16, .f32⟩
  | 53 => ⟨S4x256x16, .f32⟩
  | 54 => ⟨S4x1x256, .f32⟩
  | 55 => ⟨S4x256, .f32⟩
  | 56 => ⟨S4x256x1, .f32⟩
  | 57 => ⟨S4x1x16, .f32⟩
  | 58 => ⟨S4x16, .f32⟩
  | 59 => ⟨S4x1x16, .f32⟩
  | 60 => ⟨S4x256x16, .f32⟩
  | 61 => ⟨S4x256x16, .f32⟩
  | 62 => ⟨S4x256x16, .f32⟩
  | 63 => ⟨S4x256x16, .f32⟩
  | 64 => ⟨S4x1x16, .f32⟩
  | 65 => ⟨S4x16, .f32⟩
  | 66 => ⟨S4x1x16, .f32⟩
  | 67 => ⟨S4x256x16, .f32⟩
  | 68 => ⟨S4x256x16, .f32⟩
  | 69 => ⟨S_, .f32⟩
  | 70 => ⟨S4x256, .f32⟩
  | 71 => ⟨S_, .i32⟩
  | 72 => ⟨S1, .i32⟩
  | 73 => ⟨S4x512x256, .f32⟩
  | 74 => ⟨S4x256x16, .f32⟩
  | 75 => ⟨S4x256x16, .f32⟩
  | 76 => ⟨S4x1x256, .f32⟩
  | 77 => ⟨S4x256, .f32⟩
  | 78 => ⟨S4x256x1, .f32⟩
  | 79 => ⟨S4x1x16, .f32⟩
  | 80 => ⟨S4x16, .f32⟩
  | 81 => ⟨S4x1x16, .f32⟩
  | 82 => ⟨S4x256x16, .f32⟩
  | 83 => ⟨S4x256x16, .f32⟩
  | 84 => ⟨S4x256x16, .f32⟩
  | 85 => ⟨S4x256x16, .f32⟩
  | 86 => ⟨S4x1x16, .f32⟩
  | 87 => ⟨S4x16, .f32⟩
  | 88 => ⟨S4x1x16, .f32⟩
  | 89 => ⟨S4x256x16, .f32⟩
  | 90 => ⟨S4x256x16, .f32⟩
  | 91 => ⟨S_, .f32⟩
  | 92 => ⟨S4x256, .f32⟩
  | 93 => ⟨S_, .i32⟩
  | 94 => ⟨S1, .i32⟩
  | 95 => ⟨S4x512x256, .f32⟩
  | 96 => ⟨S4x256x16, .f32⟩
  | 97 => ⟨S4x256x16, .f32⟩
  | 98 => ⟨S4x1x256, .f32⟩
  | 99 => ⟨S4x256, .f32⟩
  | 100 => ⟨S4x256x1, .f32⟩
  | 101 => ⟨S4x1x16, .f32⟩
  | 102 => ⟨S4x16, .f32⟩
  | 103 => ⟨S4x1x16, .f32⟩
  | 104 => ⟨S4x256x16, .f32⟩
  | 105 => ⟨S4x256x16, .f32⟩
  | 106 => ⟨S4x256x16, .f32⟩
  | 107 => ⟨S4x256x16, .f32⟩
  | 108 => ⟨S4x1x16, .f32⟩
  | 109 => ⟨S4x16, .f32⟩
  | 110 => ⟨S4x1x16, .f32⟩
  | 111 => ⟨S4x256x16, .f32⟩
  | 112 => ⟨S4x256x16, .f32⟩
  | 113 => ⟨S_, .f32⟩
  | 114 => ⟨S4x256, .f32⟩
  | 115 => ⟨S_, .i32⟩
  | 116 => ⟨S1, .i32⟩
  | 117 => ⟨S4x512x256, .f32⟩
  | 118 => ⟨S4x256x16, .f32⟩
  | 119 => ⟨S4x256x16, .f32⟩
  | 120 => ⟨S4x1x256, .f32⟩
  | 121 => ⟨S4x256, .f32⟩
  | 122 => ⟨S4x256x1, .f32⟩
  | 123 => ⟨S4x1x16, .f32⟩
  | 124 => ⟨S4x16, .f32⟩
  | 125 => ⟨S4x1x16, .f32⟩
  | 126 => ⟨S4x256x16, .f32⟩
  | 127 => ⟨S4x256x16, .f32⟩
  | _ => ⟨S4x512x256, .f32⟩

abbrev hbmTy0_50 (i : Nat) : BufTy := match i % 128 with
  | 0 => ⟨S4x256x16, .f32⟩
  | 1 => ⟨S4x256x16, .f32⟩
  | 2 => ⟨S4x1x16, .f32⟩
  | 3 => ⟨S4x16, .f32⟩
  | 4 => ⟨S4x1x16, .f32⟩
  | 5 => ⟨S4x256x16, .f32⟩
  | 6 => ⟨S4x256x16, .f32⟩
  | 7 => ⟨S_, .f32⟩
  | 8 => ⟨S4x256, .f32⟩
  | 9 => ⟨S_, .i32⟩
  | 10 => ⟨S1, .i32⟩
  | 11 => ⟨S4x512x256, .f32⟩
  | 12 => ⟨S4x256x16, .f32⟩
  | 13 => ⟨S4x256x16, .f32⟩
  | 14 => ⟨S4x1x256, .f32⟩
  | 15 => ⟨S4x256, .f32⟩
  | 16 => ⟨S4x256x1, .f32⟩
  | 17 => ⟨S4x1x16, .f32⟩
  | 18 => ⟨S4x16, .f32⟩
  | 19 => ⟨S4x1x16, .f32⟩
  | 20 => ⟨S4x256x16, .f32⟩
  | 21 => ⟨S4x256x16, .f32⟩
  | 22 => ⟨S4x256x16, .f32⟩
  | 23 => ⟨S4x256x16, .f32⟩
  | 24 => ⟨S4x1x16, .f32⟩
  | 25 => ⟨S4x16, .f32⟩
  | 26 => ⟨S4x1x16, .f32⟩
  | 27 => ⟨S4x256x16, .f32⟩
  | 28 => ⟨S4x256x16, .f32⟩
  | 29 => ⟨S_, .f32⟩
  | 30 => ⟨S4x256, .f32⟩
  | 31 => ⟨S_, .i32⟩
  | 32 => ⟨S1, .i32⟩
  | 33 => ⟨S4x512x256, .f32⟩
  | 34 => ⟨S4x256x16, .f32⟩
  | 35 => ⟨S4x256x16, .f32⟩
  | 36 => ⟨S4x1x256, .f32⟩
  | 37 => ⟨S4x256, .f32⟩
  | 38 => ⟨S4x256x1, .f32⟩
  | 39 => ⟨S4x1x16, .f32⟩
  | 40 => ⟨S4x16, .f32⟩
  | 41 => ⟨S4x1x16, .f32⟩
  | 42 => ⟨S4x256x16, .f32⟩
  | 43 => ⟨S4x256x16, .f32⟩
  | 44 => ⟨S4x256x16, .f32⟩
  | 45 => ⟨S4x256x16, .f32⟩
  | 46 => ⟨S4x1x16, .f32⟩
  | 47 => ⟨S4x16, .f32⟩
  | 48 => ⟨S4x1x16, .f32⟩
  | 49 => ⟨S4x256x16, .f32⟩
  | 50 => ⟨S4x256x16, .f32⟩
  | 51 => ⟨S_, .f32⟩
  | 52 => ⟨S4x256, .f32⟩
  | 53 => ⟨S_, .i32⟩
  | 54 => ⟨S1, .i32⟩
  | 55 => ⟨S4x512x256, .f32⟩
  | 56 => ⟨S4x256x16, .f32⟩
  | 57 => ⟨S4x256x16, .f32⟩
  | 58 => ⟨S4x1x256, .f32⟩
  | 59 => ⟨S4x256, .f32⟩
  | 60 => ⟨S4x256x1, .f32⟩
  | 61 => ⟨S4x1x16, .f32⟩
  | 62 => ⟨S4x16, .f32⟩
  | 63 => ⟨S4x1x16, .f32⟩
  | 64 => ⟨S4x256x16, .f32⟩
  | 65 => ⟨S4x256x16, .f32⟩
  | 66 => ⟨S4x256x16, .f32⟩
  | 67 => ⟨S4x256x16, .f32⟩
  | 68 => ⟨S4x1x16, .f32⟩
  | 69 => ⟨S4x16, .f32⟩
  | 70 => ⟨S4x1x16, .f32⟩
  | 71 => ⟨S4x256x16, .f32⟩
  | 72 => ⟨S4x256x16, .f32⟩
  | 73 => ⟨S_, .f32⟩
  | 74 => ⟨S4x256, .f32⟩
  | 75 => ⟨S_, .i32⟩
  | 76 => ⟨S1, .i32⟩
  | 77 => ⟨S4x512x256, .f32⟩
  | 78 => ⟨S4x256x16, .f32⟩
  | 79 => ⟨S4x256x16, .f32⟩
  | 80 => ⟨S4x1x256, .f32⟩
  | 81 => ⟨S4x256, .f32⟩
  | 82 => ⟨S4x256x1, .f32⟩
  | 83 => ⟨S4x1x16, .f32⟩
  | 84 => ⟨S4x16, .f32⟩
  | 85 => ⟨S4x1x16, .f32⟩
  | 86 => ⟨S4x256x16, .f32⟩
  | 87 => ⟨S4x256x16, .f32⟩
  | 88 => ⟨S4x256x16, .f32⟩
  | 89 => ⟨S4x256x16, .f32⟩
  | 90 => ⟨S4x1x16, .f32⟩
  | 91 => ⟨S4x16, .f32⟩
  | 92 => ⟨S4x1x16, .f32⟩
  | 93 => ⟨S4x256x16, .f32⟩
  | 94 => ⟨S4x256x16, .f32⟩
  | 95 => ⟨S_, .f32⟩
  | 96 => ⟨S4x256, .f32⟩
  | 97 => ⟨S_, .i32⟩
  | 98 => ⟨S1, .i32⟩
  | 99 => ⟨S4x512x256, .f32⟩
  | 100 => ⟨S4x256x16, .f32⟩
  | 101 => ⟨S4x256x16, .f32⟩
  | 102 => ⟨S4x1x256, .f32⟩
  | 103 => ⟨S4x256, .f32⟩
  | 104 => ⟨S4x256x1, .f32⟩
  | 105 => ⟨S4x1x16, .f32⟩
  | 106 => ⟨S4x16, .f32⟩
  | 107 => ⟨S4x1x16, .f32⟩
  | 108 => ⟨S4x256x16, .f32⟩
  | 109 => ⟨S4x256x16, .f32⟩
  | 110 => ⟨S4x256x16, .f32⟩
  | 111 => ⟨S4x256x16, .f32⟩
  | 112 => ⟨S4x1x16, .f32⟩
  | 113 => ⟨S4x16, .f32⟩
  | 114 => ⟨S4x1x16, .f32⟩
  | 115 => ⟨S4x256x16, .f32⟩
  | 116 => ⟨S4x256x16, .f32⟩
  | 117 => ⟨S_, .f32⟩
  | 118 => ⟨S4x256, .f32⟩
  | 119 => ⟨S_, .i32⟩
  | 120 => ⟨S1, .i32⟩
  | 121 => ⟨S4x512x256, .f32⟩
  | 122 => ⟨S4x256x16, .f32⟩
  | 123 => ⟨S4x256x16, .f32⟩
  | 124 => ⟨S4x1x256, .f32⟩
  | 125 => ⟨S4x256, .f32⟩
  | 126 => ⟨S4x256x1, .f32⟩
  | 127 => ⟨S4x1x16, .f32⟩
  | _ => ⟨S4x512x256, .f32⟩

abbrev hbmTy0_51 (i : Nat) : BufTy := match i % 128 with
  | 0 => ⟨S4x16, .f32⟩
  | 1 => ⟨S4x1x16, .f32⟩
  | 2 => ⟨S4x256x16, .f32⟩
  | 3 => ⟨S4x256x16, .f32⟩
  | 4 => ⟨S4x256x16, .f32⟩
  | 5 => ⟨S4x256x16, .f32⟩
  | 6 => ⟨S4x1x16, .f32⟩
  | 7 => ⟨S4x16, .f32⟩
  | 8 => ⟨S4x1x16, .f32⟩
  | 9 => ⟨S4x256x16, .f32⟩
  | 10 => ⟨S4x256x16, .f32⟩
  | 11 => ⟨S_, .f32⟩
  | 12 => ⟨S4x256, .f32⟩
  | 13 => ⟨S_, .i32⟩
  | 14 => ⟨S1, .i32⟩
  | 15 => ⟨S4x512x256, .f32⟩
  | 16 => ⟨S4x256x16, .f32⟩
  | 17 => ⟨S4x256x16, .f32⟩
  | 18 => ⟨S4x1x256, .f32⟩
  | 19 => ⟨S4x256, .f32⟩
  | 20 => ⟨S4x256x1, .f32⟩
  | 21 => ⟨S4x1x16, .f32⟩
  | 22 => ⟨S4x16, .f32⟩
  | 23 => ⟨S4x1x16, .f32⟩
  | 24 => ⟨S4x256x16, .f32⟩
  | 25 => ⟨S4x256x16, .f32⟩
  | 26 => ⟨S4x256x16, .f32⟩
  | 27 => ⟨S4x256x16, .f32⟩
  | 28 => ⟨S4x1x16, .f32⟩
  | 29 => ⟨S4x16, .f32⟩
  | 30 => ⟨S4x1x16, .f32⟩
  | 31 => ⟨S4x256x16, .f32⟩
  | 32 => ⟨S4x256x16, .f32⟩
  | 33 => ⟨S_, .f32⟩
  | 34 => ⟨S4x256, .f32⟩
  | 35 => ⟨S_, .i32⟩
  | 36 => ⟨S1, .i32⟩
  | 37 => ⟨S4x512x256, .f32⟩
  | 38 => ⟨S4x256x16, .f32⟩
  | 39 => ⟨S4x256x16, .f32⟩
  | 40 => ⟨S4x1x256, .f32⟩
  | 41 => ⟨S4x256, .f32⟩
  | 42 => ⟨S4x256x1, .f32⟩
  | 43 => ⟨S4x1x16, .f32⟩
  | 44 => ⟨S4x16, .f32⟩
  | 45 => ⟨S4x1x16, .f32⟩
  | 46 => ⟨S4x256x16, .f32⟩
  | 47 => ⟨S4x256x16, .f32⟩
  | 48 => ⟨S4x256x16, .f32⟩
  | 49 => ⟨S4x256x16, .f32⟩
  | 50 => ⟨S4x1x16, .f32⟩
  | 51 => ⟨S4x16, .f32⟩
  | 52 => ⟨S4x1x16, .f32⟩
  | 53 => ⟨S4x256x16, .f32⟩
  | 54 => ⟨S4x256x16, .f32⟩
  | 55 => ⟨S_, .f32⟩
  | 56 => ⟨S4x256, .f32⟩
  | 57 => ⟨S_, .i32⟩
  | 58 => ⟨S1, .i32⟩
  | 59 => ⟨S4x512x256, .f32⟩
  | 60 => ⟨S4x256x16, .f32⟩
  | 61 => ⟨S4x256x16, .f32⟩
  | 62 => ⟨S4x1x256, .f32⟩
  | 63 => ⟨S4x256, .f32⟩
  | 64 => ⟨S4x256x1, .f32⟩
  | 65 => ⟨S4x1x16, .f32⟩
  | 66 => ⟨S4x16, .f32⟩
  | 67 => ⟨S4x1x16, .f32⟩
  | 68 => ⟨S4x256x16, .f32⟩
  | 69 => ⟨S4x256x16, .f32⟩
  | 70 => ⟨S4x256x16, .f32⟩
  | 71 => ⟨S4x256x16, .f32⟩
  | 72 => ⟨S4x1x16, .f32⟩
  | 73 => ⟨S4x16, .f32⟩
  | 74 => ⟨S4x1x16, .f32⟩
  | 75 => ⟨S4x256x16, .f32⟩
  | 76 => ⟨S4x256x16, .f32⟩
  | 77 => ⟨S_, .f32⟩
  | 78 => ⟨S4x256, .f32⟩
  | 79 => ⟨S_, .i32⟩
  | 80 => ⟨S1, .i32⟩
  | 81 => ⟨S4x512x256, .f32⟩
  | 82 => ⟨S4x256x16, .f32⟩
  | 83 => ⟨S4x256x16, .f32⟩
  | 84 => ⟨S4x1x256, .f32⟩
  | 85 => ⟨S4x256, .f32⟩
  | 86 => ⟨S4x256x1, .f32⟩
  | 87 => ⟨S4x1x16, .f32⟩
  | 88 => ⟨S4x16, .f32⟩
  | 89 => ⟨S4x1x16, .f32⟩
  | 90 => ⟨S4x256x16, .f32⟩
  | 91 => ⟨S4x256x16, .f32⟩
  | 92 => ⟨S4x256x16, .f32⟩
  | 93 => ⟨S4x256x16, .f32⟩
  | 94 => ⟨S4x1x16, .f32⟩
  | 95 => ⟨S4x16, .f32⟩
  | 96 => ⟨S4x1x16, .f32⟩
  | 97 => ⟨S4x256x16, .f32⟩
  | 98 => ⟨S4x256x16, .f32⟩
  | 99 => ⟨S_, .f32⟩
  | 100 => ⟨S4x256, .f32⟩
  | 101 => ⟨S_, .i32⟩
  | 102 => ⟨S1, .i32⟩
  | 103 => ⟨S4x512x256, .f32⟩
  | 104 => ⟨S4x256x16, .f32⟩
  | 105 => ⟨S4x256x16, .f32⟩
  | 106 => ⟨S4x1x256, .f32⟩
  | 107 => ⟨S4x256, .f32⟩
  | 108 => ⟨S4x256x1, .f32⟩
  | 109 => ⟨S4x1x16, .f32⟩
  | 110 => ⟨S4x16, .f32⟩
  | 111 => ⟨S4x1x16, .f32⟩
  | 112 => ⟨S4x256x16, .f32⟩
  | 113 => ⟨S4x256x16, .f32⟩
  | 114 => ⟨S4x256x16, .f32⟩
  | 115 => ⟨S4x256x16, .f32⟩
  | 116 => ⟨S4x1x16, .f32⟩
  | 117 => ⟨S4x16, .f32⟩
  | 118 => ⟨S4x1x16, .f32⟩
  | 119 => ⟨S4x256x16, .f32⟩
  | 120 => ⟨S4x256x16, .f32⟩
  | 121 => ⟨S_, .f32⟩
  | 122 => ⟨S4x256, .f32⟩
  | 123 => ⟨S_, .i32⟩
  | 124 => ⟨S1, .i32⟩
  | 125 => ⟨S4x512x256, .f32⟩
  | 126 => ⟨S4x256x16, .f32⟩
  | 127 => ⟨S4x256x16, .f32⟩
  | _ => ⟨S4x512x256, .f32⟩

abbrev hbmTy0_52 (i : Nat) : BufTy := match i % 128 with
  | 0 => ⟨S4x1x256, .f32⟩
  | 1 => ⟨S4x256, .f32⟩
  | 2 => ⟨S4x256x1, .f32⟩
  | 3 => ⟨S4x1x16, .f32⟩
  | 4 => ⟨S4x16, .f32⟩
  | 5 => ⟨S4x1x16, .f32⟩
  | 6 => ⟨S4x256x16, .f32⟩
  | 7 => ⟨S4x256x16, .f32⟩
  | 8 => ⟨S4x256x16, .f32⟩
  | 9 => ⟨S4x256x16, .f32⟩
  | 10 => ⟨S4x1x16, .f32⟩
  | 11 => ⟨S4x16, .f32⟩
  | 12 => ⟨S4x1x16, .f32⟩
  | 13 => ⟨S4x256x16, .f32⟩
  | 14 => ⟨S4x256x16, .f32⟩
  | 15 => ⟨S_, .f32⟩
  | 16 => ⟨S4x256, .f32⟩
  | 17 => ⟨S_, .i32⟩
  | 18 => ⟨S1, .i32⟩
  | 19 => ⟨S4x512x256, .f32⟩
  | 20 => ⟨S4x256x16, .f32⟩
  | 21 => ⟨S4x256x16, .f32⟩
  | 22 => ⟨S4x1x256, .f32⟩
  | 23 => ⟨S4x256, .f32⟩
  | 24 => ⟨S4x256x1, .f32⟩
  | 25 => ⟨S4x1x16, .f32⟩
  | 26 => ⟨S4x16, .f32⟩
  | 27 => ⟨S4x1x16, .f32⟩
  | 28 => ⟨S4x256x16, .f32⟩
  | 29 => ⟨S4x256x16, .f32⟩
  | 30 => ⟨S4x256x16, .f32⟩
  | 31 => ⟨S4x256x16, .f32⟩
  | 32 => ⟨S4x1x16, .f32⟩
  | 33 => ⟨S4x16, .f32⟩
  | 34 => ⟨S4x1x16, .f32⟩
  | 35 => ⟨S4x256x16, .f32⟩
  | 36 => ⟨S4x256x16, .f32⟩
  | 37 => ⟨S_, .f32⟩
  | 38 => ⟨S4x256, .f32⟩
  | 39 => ⟨S_, .i32⟩
  | 40 => ⟨S1, .i32⟩
  | 41 => ⟨S4x512x256, .f32⟩
  | 42 => ⟨S4x256x16, .f32⟩
  | 43 => ⟨S4x256x16, .f32⟩
  | 44 => ⟨S4x1x256, .f32⟩
  | 45 => ⟨S4x256, .f32⟩
  | 46 => ⟨S4x256x1, .f32⟩
  | 47 => ⟨S4x1x16, .f32⟩
  | 48 => ⟨S4x16, .f32⟩
  | 49 => ⟨S4x1x16, .f32⟩
  | 50 => ⟨S4x256x16, .f32⟩
  | 51 => ⟨S4x256x16, .f32⟩
  | 52 => ⟨S4x256x16, .f32⟩
  | 53 => ⟨S4x256x16, .f32⟩
  | 54 => ⟨S4x1x16, .f32⟩
  | 55 => ⟨S4x16, .f32⟩
  | 56 => ⟨S4x1x16, .f32⟩
  | 57 => ⟨S4x256x16, .f32⟩
  | 58 => ⟨S4x256x16, .f32⟩
  | 59 => ⟨S_, .f32⟩
  | 60 => ⟨S4x256, .f32⟩
  | 61 => ⟨S_, .i32⟩
  | 62 => ⟨S1, .i32⟩
  | 63 => ⟨S4x512x256, .f32⟩
  | 64 => ⟨S4x256x16, .f32⟩
  | 65 => ⟨S4x256x16, .f32⟩
  | 66 => ⟨S4x1x256, .f32⟩
  | 67 => ⟨S4x256, .f32⟩
  | 68 => ⟨S4x256x1, .f32⟩
  | 69 => ⟨S4x1x16, .f32⟩
  | 70 => ⟨S4x16, .f32⟩
  | 71 => ⟨S4x1x16, .f32⟩
  | 72 => ⟨S4x256x16, .f32⟩
  | 73 => ⟨S4x256x16, .f32⟩
  | 74 => ⟨S4x256x16, .f32⟩
  | 75 => ⟨S4x256x16, .f32⟩
  | 76 => ⟨S4x1x16, .f32⟩
  | 77 => ⟨S4x16, .f32⟩
  | 78 => ⟨S4x1x16, .f32⟩
  | 79 => ⟨S4x256x16, .f32⟩
  | 80 => ⟨S4x256x16, .f32⟩
  | 81 => ⟨S_, .f32⟩
  | 82 => ⟨S4x256, .f32⟩
  | 83 => ⟨S_, .i32⟩
  | 84 => ⟨S1, .i32⟩
  | 85 => ⟨S4x512x256, .f32⟩
  | 86 => ⟨S4x256x16, .f32⟩
  | 87 => ⟨S4x256x16, .f32⟩
  | 88 => ⟨S4x1x256, .f32⟩
  | 89 => ⟨S4x256, .f32⟩
  | 90 => ⟨S4x256x1, .f32⟩
  | 91 => ⟨S4x1x16, .f32⟩
  | 92 => ⟨S4x16, .f32⟩
  | 93 => ⟨S4x1x16, .f32⟩
  | 94 => ⟨S4x256x16, .f32⟩
  | 95 => ⟨S4x256x16, .f32⟩
  | 96 => ⟨S4x256x16, .f32⟩
  | 97 => ⟨S4x256x16, .f32⟩
  | 98 => ⟨S4x1x16, .f32⟩
  | 99 => ⟨S4x16, .f32⟩
  | 100 => ⟨S4x1x16, .f32⟩
  | 101 => ⟨S4x256x16, .f32⟩
  | 102 => ⟨S4x256x16, .f32⟩
  | 103 => ⟨S_, .f32⟩
  | 104 => ⟨S4x256, .f32⟩
  | 105 => ⟨S_, .i32⟩
  | 106 => ⟨S1, .i32⟩
  | 107 => ⟨S4x512x256, .f32⟩
  | 108 => ⟨S4x256x16, .f32⟩
  | 109 => ⟨S4x256x16, .f32⟩
  | 110 => ⟨S4x1x256, .f32⟩
  | 111 => ⟨S4x256, .f32⟩
  | 112 => ⟨S4x256x1, .f32⟩
  | 113 => ⟨S4x1x16, .f32⟩
  | 114 => ⟨S4x16, .f32⟩
  | 115 => ⟨S4x1x16, .f32⟩
  | 116 => ⟨S4x256x16, .f32⟩
  | 117 => ⟨S4x256x16, .f32⟩
  | 118 => ⟨S4x256x16, .f32⟩
  | 119 => ⟨S4x256x16, .f32⟩
  | 120 => ⟨S4x1x16, .f32⟩
  | 121 => ⟨S4x16, .f32⟩
  | 122 => ⟨S4x1x16, .f32⟩
  | 123 => ⟨S4x256x16, .f32⟩
  | 124 => ⟨S4x256x16, .f32⟩
  | 125 => ⟨S_, .f32⟩
  | 126 => ⟨S4x256, .f32⟩
  | 127 => ⟨S_, .i32⟩
  | _ => ⟨S4x512x256, .f32⟩

abbrev hbmTy0_53 (i : Nat) : BufTy := match i % 128 with
  | 0 => ⟨S1, .i32⟩
  | 1 => ⟨S4x512x256, .f32⟩
  | 2 => ⟨S4x256x16, .f32⟩
  | 3 => ⟨S4x256x16, .f32⟩
  | 4 => ⟨S4x1x256, .f32⟩
  | 5 => ⟨S4x256, .f32⟩
  | 6 => ⟨S4x256x1, .f32⟩
  | 7 => ⟨S4x1x16, .f32⟩
  | 8 => ⟨S4x16, .f32⟩
  | 9 => ⟨S4x1x16, .f32⟩
  | 10 => ⟨S4x256x16, .f32⟩
  | 11 => ⟨S4x256x16, .f32⟩
  | 12 => ⟨S4x256x16, .f32⟩
  | 13 => ⟨S4x256x16, .f32⟩
  | 14 => ⟨S4x1x16, .f32⟩
  | 15 => ⟨S4x16, .f32⟩
  | 16 => ⟨S4x1x16, .f32⟩
  | 17 => ⟨S4x256x16, .f32⟩
  | 18 => ⟨S4x256x16, .f32⟩
  | 19 => ⟨S_, .f32⟩
  | 20 => ⟨S4x256, .f32⟩
  | 21 => ⟨S_, .i32⟩
  | 22 => ⟨S1, .i32⟩
  | 23 => ⟨S4x512x256, .f32⟩
  | 24 => ⟨S4x256x16, .f32⟩
  | 25 => ⟨S4x256x16, .f32⟩
  | 26 => ⟨S4x1x256, .f32⟩
  | 27 => ⟨S4x256, .f32⟩
  | 28 => ⟨S4x256x1, .f32⟩
  | 29 => ⟨S4x1x16, .f32⟩
  | 30 => ⟨S4x16, .f32⟩
  | 31 => ⟨S4x1x16, .f32⟩
  | 32 => ⟨S4x256x16, .f32⟩
  | 33 => ⟨S4x256x16, .f32⟩
  | 34 => ⟨S4x256x16, .f32⟩
  | 35 => ⟨S4x256x16, .f32⟩
  | 36 => ⟨S4x1x16, .f32⟩
  | 37 => ⟨S4x16, .f32⟩
  | 38 => ⟨S4x1x16, .f32⟩
  | 39 => ⟨S4x256x16, .f32⟩
  | 40 => ⟨S4x256x16, .f32⟩
  | 41 => ⟨S_, .f32⟩
  | 42 => ⟨S4x256, .f32⟩
  | 43 => ⟨S_, .i32⟩
  | 44 => ⟨S1, .i32⟩
  | 45 => ⟨S4x512x256, .f32⟩
  | 46 => ⟨S4x256x16, .f32⟩
  | 47 => ⟨S4x256x16, .f32⟩
  | 48 => ⟨S4x1x256, .f32⟩
  | 49 => ⟨S4x256, .f32⟩
  | 50 => ⟨S4x256x1, .f32⟩
  | 51 => ⟨S4x1x16, .f32⟩
  | 52 => ⟨S4x16, .f32⟩
  | 53 => ⟨S4x1x16, .f32⟩
  | 54 => ⟨S4x256x16, .f32⟩
  | 55 => ⟨S4x256x16, .f32⟩
  | 56 => ⟨S4x256x16, .f32⟩
  | 57 => ⟨S4x256x16, .f32⟩
  | 58 => ⟨S4x1x16, .f32⟩
  | 59 => ⟨S4x16, .f32⟩
  | 60 => ⟨S4x1x16, .f32⟩
  | 61 => ⟨S4x256x16, .f32⟩
  | 62 => ⟨S4x256x16, .f32⟩
  | 63 => ⟨S_, .f32⟩
  | 64 => ⟨S4x256, .f32⟩
  | 65 => ⟨S_, .i32⟩
  | 66 => ⟨S1, .i32⟩
  | 67 => ⟨S4x512x256, .f32⟩
  | 68 => ⟨S4x256x16, .f32⟩
  | 69 => ⟨S4x256x16, .f32⟩
  | 70 => ⟨S4x1x256, .f32⟩
  | 71 => ⟨S4x256, .f32⟩
  | 72 => ⟨S4x256x1, .f32⟩
  | 73 => ⟨S4x1x16, .f32⟩
  | 74 => ⟨S4x16, .f32⟩
  | 75 => ⟨S4x1x16, .f32⟩
  | 76 => ⟨S4x256x16, .f32⟩
  | 77 => ⟨S4x256x16, .f32⟩
  | 78 => ⟨S4x256x16, .f32⟩
  | 79 => ⟨S4x256x16, .f32⟩
  | 80 => ⟨S4x1x16, .f32⟩
  | 81 => ⟨S4x16, .f32⟩
  | 82 => ⟨S4x1x16, .f32⟩
  | 83 => ⟨S4x256x16, .f32⟩
  | 84 => ⟨S4x256x16, .f32⟩
  | 85 => ⟨S_, .f32⟩
  | 86 => ⟨S4x256, .f32⟩
  | 87 => ⟨S_, .i32⟩
  | 88 => ⟨S1, .i32⟩
  | 89 => ⟨S4x512x256, .f32⟩
  | 90 => ⟨S4x256x16, .f32⟩
  | 91 => ⟨S4x256x16, .f32⟩
  | 92 => ⟨S4x1x256, .f32⟩
  | 93 => ⟨S4x256, .f32⟩
  | 94 => ⟨S4x256x1, .f32⟩
  | 95 => ⟨S4x1x16, .f32⟩
  | 96 => ⟨S4x16, .f32⟩
  | 97 => ⟨S4x1x16, .f32⟩
  | 98 => ⟨S4x256x16, .f32⟩
  | 99 => ⟨S4x256x16, .f32⟩
  | 100 => ⟨S4x256x16, .f32⟩
  | 101 => ⟨S4x256x16, .f32⟩
  | 102 => ⟨S4x1x16, .f32⟩
  | 103 => ⟨S4x16, .f32⟩
  | 104 => ⟨S4x1x16, .f32⟩
  | 105 => ⟨S4x256x16, .f32⟩
  | 106 => ⟨S4x256x16, .f32⟩
  | 107 => ⟨S_, .f32⟩
  | 108 => ⟨S4x256, .f32⟩
  | 109 => ⟨S_, .i32⟩
  | 110 => ⟨S1, .i32⟩
  | 111 => ⟨S4x512x256, .f32⟩
  | 112 => ⟨S4x256x16, .f32⟩
  | 113 => ⟨S4x256x16, .f32⟩
  | 114 => ⟨S4x1x256, .f32⟩
  | 115 => ⟨S4x256, .f32⟩
  | 116 => ⟨S4x256x1, .f32⟩
  | 117 => ⟨S4x1x16, .f32⟩
  | 118 => ⟨S4x16, .f32⟩
  | 119 => ⟨S4x1x16, .f32⟩
  | 120 => ⟨S4x256x16, .f32⟩
  | 121 => ⟨S4x256x16, .f32⟩
  | 122 => ⟨S4x256x16, .f32⟩
  | 123 => ⟨S4x256x16, .f32⟩
  | 124 => ⟨S4x1x16, .f32⟩
  | 125 => ⟨S4x16, .f32⟩
  | 126 => ⟨S4x1x16, .f32⟩
  | 127 => ⟨S4x256x16, .f32⟩
  | _ => ⟨S4x512x256, .f32⟩

abbrev hbmTy0_54 (i : Nat) : BufTy := match i % 128 with
  | 0 => ⟨S4x256x16, .f32⟩
  | 1 => ⟨S_, .f32⟩
  | 2 => ⟨S4x256, .f32⟩
  | 3 => ⟨S_, .i32⟩
  | 4 => ⟨S1, .i32⟩
  | 5 => ⟨S4x512x256, .f32⟩
  | 6 => ⟨S4x256x16, .f32⟩
  | 7 => ⟨S4x256x16, .f32⟩
  | 8 => ⟨S4x1x256, .f32⟩
  | 9 => ⟨S4x256, .f32⟩
  | 10 => ⟨S4x256x1, .f32⟩
  | 11 => ⟨S4x1x16, .f32⟩
  | 12 => ⟨S4x16, .f32⟩
  | 13 => ⟨S4x1x16, .f32⟩
  | 14 => ⟨S4x256x16, .f32⟩
  | 15 => ⟨S4x256x16, .f32⟩
  | 16 => ⟨S4x256x16, .f32⟩
  | 17 => ⟨S4x256x16, .f32⟩
  | 18 => ⟨S4x1x16, .f32⟩
  | 19 => ⟨S4x16, .f32⟩
  | 20 => ⟨S4x1x16, .f32⟩
  | 21 => ⟨S4x256x16, .f32⟩
  | 22 => ⟨S4x256x16, .f32⟩
  | 23 => ⟨S_, .f32⟩
  | 24 => ⟨S4x256, .f32⟩
  | 25 => ⟨S_, .i32⟩
  | 26 => ⟨S1, .i32⟩
  | 27 => ⟨S4x512x256, .f32⟩
  | 28 => ⟨S4x256x16, .f32⟩
  | 29 => ⟨S4x256x16, .f32⟩
  | 30 => ⟨S4x1x256, .f32⟩
  | 31 => ⟨S4x256, .f32⟩
  | 32 => ⟨S4x256x1, .f32⟩
  | 33 => ⟨S4x1x16, .f32⟩
  | 34 => ⟨S4x16, .f32⟩
  | 35 => ⟨S4x1x16, .f32⟩
  | 36 => ⟨S4x256x16, .f32⟩
  | 37 => ⟨S4x256x16, .f32⟩
  | 38 => ⟨S4x256x16, .f32⟩
  | 39 => ⟨S4x256x16, .f32⟩
  | 40 => ⟨S4x1x16, .f32⟩
  | 41 => ⟨S4x16, .f32⟩
  | 42 => ⟨S4x1x16, .f32⟩
  | 43 => ⟨S4x256x16, .f32⟩
  | 44 => ⟨S4x256x16, .f32⟩
  | 45 => ⟨S_, .f32⟩
  | 46 => ⟨S4x256, .f32⟩
  | 47 => ⟨S_, .i32⟩
  | 48 => ⟨S1, .i32⟩
  | 49 => ⟨S4x512x256, .f32⟩
  | 50 => ⟨S4x256x16, .f32⟩
  | 51 => ⟨S4x256x16, .f32⟩
  | 52 => ⟨S4x1x256, .f32⟩
  | 53 => ⟨S4x256, .f32⟩
  | 54 => ⟨S4x256x1, .f32⟩
  | 55 => ⟨S4x1x16, .f32⟩
  | 56 => ⟨S4x16, .f32⟩
  | 57 => ⟨S4x1x16, .f32⟩
  | 58 => ⟨S4x256x16, .f32⟩
  | 59 => ⟨S4x256x16, .f32⟩
  | 60 => ⟨S4x256x16, .f32⟩
  | 61 => ⟨S4x256x16, .f32⟩
  | 62 => ⟨S4x1x16, .f32⟩
  | 63 => ⟨S4x16, .f32⟩
  | 64 => ⟨S4x1x16, .f32⟩
  | 65 => ⟨S4x256x16, .f32⟩
  | 66 => ⟨S4x256x16, .f32⟩
  | 67 => ⟨S_, .f32⟩
  | 68 => ⟨S4x256, .f32⟩
  | 69 => ⟨S_, .i32⟩
  | 70 => ⟨S1, .i32⟩
  | 71 => ⟨S4x512x256, .f32⟩
  | 72 => ⟨S4x256x16, .f32⟩
  | 73 => ⟨S4x256x16, .f32⟩
  | 74 => ⟨S4x1x256, .f32⟩
  | 75 => ⟨S4x256, .f32⟩
  | 76 => ⟨S4x256x1, .f32⟩
  | 77 => ⟨S4x1x16, .f32⟩
  | 78 => ⟨S4x16, .f32⟩
  | 79 => ⟨S4x1x16, .f32⟩
  | 80 => ⟨S4x256x16, .f32⟩
  | 81 => ⟨S4x256x16, .f32⟩
  | 82 => ⟨S4x256x16, .f32⟩
  | 83 => ⟨S4x256x16, .f32⟩
  | 84 => ⟨S4x1x16, .f32⟩
  | 85 => ⟨S4x16, .f32⟩
  | 86 => ⟨S4x1x16, .f32⟩
  | 87 => ⟨S4x256x16, .f32⟩
  | 88 => ⟨S4x256x16, .f32⟩
  | 89 => ⟨S_, .f32⟩
  | 90 => ⟨S4x256, .f32⟩
  | 91 => ⟨S_, .i32⟩
  | 92 => ⟨S1, .i32⟩
  | 93 => ⟨S4x512x256, .f32⟩
  | 94 => ⟨S4x256x16, .f32⟩
  | 95 => ⟨S4x256x16, .f32⟩
  | 96 => ⟨S4x1x256, .f32⟩
  | 97 => ⟨S4x256, .f32⟩
  | 98 => ⟨S4x256x1, .f32⟩
  | 99 => ⟨S4x1x16, .f32⟩
  | 100 => ⟨S4x16, .f32⟩
  | 101 => ⟨S4x1x16, .f32⟩
  | 102 => ⟨S4x256x16, .f32⟩
  | 103 => ⟨S4x256x16, .f32⟩
  | 104 => ⟨S4x256x16, .f32⟩
  | 105 => ⟨S4x256x16, .f32⟩
  | 106 => ⟨S4x1x16, .f32⟩
  | 107 => ⟨S4x16, .f32⟩
  | 108 => ⟨S4x1x16, .f32⟩
  | 109 => ⟨S4x256x16, .f32⟩
  | 110 => ⟨S4x256x16, .f32⟩
  | 111 => ⟨S_, .f32⟩
  | 112 => ⟨S4x256, .f32⟩
  | 113 => ⟨S_, .i32⟩
  | 114 => ⟨S1, .i32⟩
  | 115 => ⟨S4x512x256, .f32⟩
  | 116 => ⟨S4x256x16, .f32⟩
  | 117 => ⟨S4x256x16, .f32⟩
  | 118 => ⟨S4x1x256, .f32⟩
  | 119 => ⟨S4x256, .f32⟩
  | 120 => ⟨S4x256x1, .f32⟩
  | 121 => ⟨S4x1x16, .f32⟩
  | 122 => ⟨S4x16, .f32⟩
  | 123 => ⟨S4x1x16, .f32⟩
  | 124 => ⟨S4x256x16, .f32⟩
  | 125 => ⟨S4x256x16, .f32⟩
  | 126 => ⟨S4x256x16, .f32⟩
  | 127 => ⟨S4x256x16, .f32⟩
  | _ => ⟨S4x512x256, .f32⟩

abbrev hbmTy0_55 (i : Nat) : BufTy := match i % 128 with
  | 0 => ⟨S4x1x16, .f32⟩
  | 1 => ⟨S4x16, .f32⟩
  | 2 => ⟨S4x1x16, .f32⟩
  | 3 => ⟨S4x256x16, .f32⟩
  | 4 => ⟨S4x256x16, .f32⟩
  | 5 => ⟨S_, .f32⟩
  | 6 => ⟨S4x256, .f32⟩
  | 7 => ⟨S_, .i32⟩
  | 8 => ⟨S1, .i32⟩
  | 9 => ⟨S4x512x256, .f32⟩
  | 10 => ⟨S4x256x16, .f32⟩
  | 11 => ⟨S4x256x16, .f32⟩
  | 12 => ⟨S4x1x256, .f32⟩
  | 13 => ⟨S4x256, .f32⟩
  | 14 => ⟨S4x256x1, .f32⟩
  | 15 => ⟨S4x1x16, .f32⟩
  | 16 => ⟨S4x16, .f32⟩
  | 17 => ⟨S4x1x16, .f32⟩
  | 18 => ⟨S4x256x16, .f32⟩
  | 19 => ⟨S4x256x16, .f32⟩
  | 20 => ⟨S4x256x16, .f32⟩
  | 21 => ⟨S4x256x16, .f32⟩
  | 22 => ⟨S4x1x16, .f32⟩
  | 23 => ⟨S4x16, .f32⟩
  | 24 => ⟨S4x1x16, .f32⟩
  | 25 => ⟨S4x256x16, .f32⟩
  | 26 => ⟨S4x256x16, .f32⟩
  | 27 => ⟨S_, .f32⟩
  | 28 => ⟨S4x256, .f32⟩
  | 29 => ⟨S_, .i32⟩
  | 30 => ⟨S1, .i32⟩
  | 31 => ⟨S4x512x256, .f32⟩
  | 32 => ⟨S4x256x16, .f32⟩
  | 33 => ⟨S4x256x16, .f32⟩
  | 34 => ⟨S4x1x256, .f32⟩
  | 35 => ⟨S4x256, .f32⟩
  | 36 => ⟨S4x256x1, .f32⟩
  | 37 => ⟨S4x1x16, .f32⟩
  | 38 => ⟨S4x16, .f32⟩
  | 39 => ⟨S4x1x16, .f32⟩
  | 40 => ⟨S4x256x16, .f32⟩
  | 41 => ⟨S4x256x16, .f32⟩
  | 42 => ⟨S4x256x16, .f32⟩
  | 43 => ⟨S4x256x16, .f32⟩
  | 44 => ⟨S4x1x16, .f32⟩
  | 45 => ⟨S4x16, .f32⟩
  | 46 => ⟨S4x1x16, .f32⟩
  | 47 => ⟨S4x256x16, .f32⟩
  | 48 => ⟨S4x256x16, .f32⟩
  | 49 => ⟨S_, .f32⟩
  | 50 => ⟨S4x256, .f32⟩
  | 51 => ⟨S_, .i32⟩
  | 52 => ⟨S1, .i32⟩
  | 53 => ⟨S4x512x256, .f32⟩
  | 54 => ⟨S4x256x16, .f32⟩
  | 55 => ⟨S4x256x16, .f32⟩
  | 56 => ⟨S4x1x256, .f32⟩
  | 57 => ⟨S4x256, .f32⟩
  | 58 => ⟨S4x256x1, .f32⟩
  | 59 => ⟨S4x1x16, .f32⟩
  | 60 => ⟨S4x16, .f32⟩
  | 61 => ⟨S4x1x16, .f32⟩
  | 62 => ⟨S4x256x16, .f32⟩
  | 63 => ⟨S4x256x16, .f32⟩
  | 64 => ⟨S4x256x16, .f32⟩
  | 65 => ⟨S4x256x16, .f32⟩
  | 66 => ⟨S4x1x16, .f32⟩
  | 67 => ⟨S4x16, .f32⟩
  | 68 => ⟨S4x1x16, .f32⟩
  | 69 => ⟨S4x256x16, .f32⟩
  | 70 => ⟨S4x256x16, .f32⟩
  | 71 => ⟨S_, .f32⟩
  | 72 => ⟨S4x256, .f32⟩
  | 73 => ⟨S_, .i32⟩
  | 74 => ⟨S1, .i32⟩
  | 75 => ⟨S4x512x256, .f32⟩
  | 76 => ⟨S4x256x16, .f32⟩
  | 77 => ⟨S4x256x16, .f32⟩
  | 78 => ⟨S4x1x256, .f32⟩
  | 79 => ⟨S4x256, .f32⟩
  | 80 => ⟨S4x256x1, .f32⟩
  | 81 => ⟨S4x1x16, .f32⟩
  | 82 => ⟨S4x16, .f32⟩
  | 83 => ⟨S4x1x16, .f32⟩
  | 84 => ⟨S4x256x16, .f32⟩
  | 85 => ⟨S4x256x16, .f32⟩
  | 86 => ⟨S4x256x16, .f32⟩
  | 87 => ⟨S4x256x16, .f32⟩
  | 88 => ⟨S4x1x16, .f32⟩
  | 89 => ⟨S4x16, .f32⟩
  | 90 => ⟨S4x1x16, .f32⟩
  | 91 => ⟨S4x256x16, .f32⟩
  | 92 => ⟨S4x256x16, .f32⟩
  | 93 => ⟨S_, .f32⟩
  | 94 => ⟨S4x256, .f32⟩
  | 95 => ⟨S_, .i32⟩
  | 96 => ⟨S1, .i32⟩
  | 97 => ⟨S4x512x256, .f32⟩
  | 98 => ⟨S4x256x16, .f32⟩
  | 99 => ⟨S4x256x16, .f32⟩
  | 100 => ⟨S4x1x256, .f32⟩
  | 101 => ⟨S4x256, .f32⟩
  | 102 => ⟨S4x256x1, .f32⟩
  | 103 => ⟨S4x1x16, .f32⟩
  | 104 => ⟨S4x16, .f32⟩
  | 105 => ⟨S4x1x16, .f32⟩
  | 106 => ⟨S4x256x16, .f32⟩
  | 107 => ⟨S4x256x16, .f32⟩
  | 108 => ⟨S4x256x16, .f32⟩
  | 109 => ⟨S4x256x16, .f32⟩
  | 110 => ⟨S4x1x16, .f32⟩
  | 111 => ⟨S4x16, .f32⟩
  | 112 => ⟨S4x1x16, .f32⟩
  | 113 => ⟨S4x256x16, .f32⟩
  | 114 => ⟨S4x256x16, .f32⟩
  | 115 => ⟨S_, .f32⟩
  | 116 => ⟨S4x256, .f32⟩
  | 117 => ⟨S_, .i32⟩
  | 118 => ⟨S1, .i32⟩
  | 119 => ⟨S4x512x256, .f32⟩
  | 120 => ⟨S4x256x16, .f32⟩
  | 121 => ⟨S4x256x16, .f32⟩
  | 122 => ⟨S4x1x256, .f32⟩
  | 123 => ⟨S4x256, .f32⟩
  | 124 => ⟨S4x256x1, .f32⟩
  | 125 => ⟨S4x1x16, .f32⟩
  | 126 => ⟨S4x16, .f32⟩
  | 127 => ⟨S4x1x16, .f32⟩
  | _ => ⟨S4x512x256, .f32⟩

abbrev hbmTy0_56 (i : Nat) : BufTy := match i % 128 with
  | 0 => ⟨S4x256x16, .f32⟩
  | 1 => ⟨S4x256x16, .f32⟩
  | 2 => ⟨S4x256x16, .f32⟩
  | 3 => ⟨S4x256x16, .f32⟩
  | 4 => ⟨S4x1x16, .f32⟩
  | 5 => ⟨S4x16, .f32⟩
  | 6 => ⟨S4x1x16, .f32⟩
  | 7 => ⟨S4x256x16, .f32⟩
  | 8 => ⟨S4x256x16, .f32⟩
  | 9 => ⟨S_, .f32⟩
  | 10 => ⟨S4x256, .f32⟩
  | 11 => ⟨S_, .i32⟩
  | 12 => ⟨S1, .i32⟩
  | 13 => ⟨S4x512x256, .f32⟩
  | 14 => ⟨S4x256x16, .f32⟩
  | 15 => ⟨S4x256x16, .f32⟩
  | 16 => ⟨S4x1x256, .f32⟩
  | 17 => ⟨S4x256, .f32⟩
  | 18 => ⟨S4x256x1, .f32⟩
  | 19 => ⟨S4x1x16, .f32⟩
  | 20 => ⟨S4x16, .f32⟩
  | 21 => ⟨S4x1x16, .f32⟩
  | 22 => ⟨S4x256x16, .f32⟩
  | 23 => ⟨S4x256x16, .f32⟩
  | 24 => ⟨S4x256x16, .f32⟩
  | 25 => ⟨S4x256x16, .f32⟩
  | 26 => ⟨S4x1x16, .f32⟩
  | 27 => ⟨S4x16, .f32⟩
  | 28 => ⟨S4x1x16, .f32⟩
  | 29 => ⟨S4x256x16, .f32⟩
  | 30 => ⟨S4x256x16, .f32⟩
  | 31 => ⟨S_, .f32⟩
  | 32 => ⟨S4x256, .f32⟩
  | 33 => ⟨S_, .i32⟩
  | 34 => ⟨S1, .i32⟩
  | 35 => ⟨S4x512x256, .f32⟩
  | 36 => ⟨S4x256x16, .f32⟩
  | 37 => ⟨S4x256x16, .f32⟩
  | 38 => ⟨S4x1x256, .f32⟩
  | 39 => ⟨S4x256, .f32⟩
  | 40 => ⟨S4x256x1, .f32⟩
  | 41 => ⟨S4x1x16, .f32⟩
  | 42 => ⟨S4x16, .f32⟩
  | 43 => ⟨S4x1x16, .f32⟩
  | 44 => ⟨S4x256x16, .f32⟩
  | 45 => ⟨S4x256x16, .f32⟩
  | 46 => ⟨S4x256x16, .f32⟩
  | 47 => ⟨S4x256x16, .f32⟩
  | 48 => ⟨S4x1x16, .f32⟩
  | 49 => ⟨S4x16, .f32⟩
  | 50 => ⟨S4x1x16, .f32⟩
  | 51 => ⟨S4x256x16, .f32⟩
  | 52 => ⟨S4x256x16, .f32⟩
  | 53 => ⟨S_, .f32⟩
  | 54 => ⟨S4x256, .f32⟩
  | 55 => ⟨S_, .i32⟩
  | 56 => ⟨S1, .i32⟩
  | 57 => ⟨S4x512x256, .f32⟩
  | 58 => ⟨S4x256x16, .f32⟩
  | 59 => ⟨S4x256x16, .f32⟩
  | 60 => ⟨S4x1x256, .f32⟩
  | 61 => ⟨S4x256, .f32⟩
  | 62 => ⟨S4x256x1, .f32⟩
  | 63 => ⟨S4x1x16, .f32⟩
  | 64 => ⟨S4x16, .f32⟩
  | 65 => ⟨S4x1x16, .f32⟩
  | 66 => ⟨S4x256x16, .f32⟩
  | 67 => ⟨S4x256x16, .f32⟩
  | 68 => ⟨S4x256x16, .f32⟩
  | 69 => ⟨S4x256x16, .f32⟩
  | 70 => ⟨S4x1x16, .f32⟩
  | 71 => ⟨S4x16, .f32⟩
  | 72 => ⟨S4x1x16, .f32⟩
  | 73 => ⟨S4x256x16, .f32⟩
  | 74 => ⟨S4x256x16, .f32⟩
  | 75 => ⟨S_, .f32⟩
  | 76 => ⟨S4x256, .f32⟩
  | 77 => ⟨S_, .i32⟩
  | 78 => ⟨S1, .i32⟩
  | 79 => ⟨S4x512x256, .f32⟩
  | 80 => ⟨S4x256x16, .f32⟩
  | 81 => ⟨S4x256x16, .f32⟩
  | 82 => ⟨S4x1x256, .f32⟩
  | 83 => ⟨S4x256, .f32⟩
  | 84 => ⟨S4x256x1, .f32⟩
  | 85 => ⟨S4x1x16, .f32⟩
  | 86 => ⟨S4x16, .f32⟩
  | 87 => ⟨S4x1x16, .f32⟩
  | 88 => ⟨S4x256x16, .f32⟩
  | 89 => ⟨S4x256x16, .f32⟩
  | 90 => ⟨S4x256x16, .f32⟩
  | 91 => ⟨S4x256x16, .f32⟩
  | 92 => ⟨S4x1x16, .f32⟩
  | 93 => ⟨S4x16, .f32⟩
  | 94 => ⟨S4x1x16, .f32⟩
  | 95 => ⟨S4x256x16, .f32⟩
  | 96 => ⟨S4x256x16, .f32⟩
  | 97 => ⟨S_, .f32⟩
  | 98 => ⟨S4x256, .f32⟩
  | 99 => ⟨S_, .i32⟩
  | 100 => ⟨S1, .i32⟩
  | 101 => ⟨S4x512x256, .f32⟩
  | 102 => ⟨S4x256x16, .f32⟩
  | 103 => ⟨S4x256x16, .f32⟩
  | 104 => ⟨S4x1x256, .f32⟩
  | 105 => ⟨S4x256, .f32⟩
  | 106 => ⟨S4x256x1, .f32⟩
  | 107 => ⟨S4x1x16, .f32⟩
  | 108 => ⟨S4x16, .f32⟩
  | 109 => ⟨S4x1x16, .f32⟩
  | 110 => ⟨S4x256x16, .f32⟩
  | 111 => ⟨S4x256x16, .f32⟩
  | 112 => ⟨S4x256x16, .f32⟩
  | 113 => ⟨S4x256x16, .f32⟩
  | 114 => ⟨S4x1x16, .f32⟩
  | 115 => ⟨S4x16, .f32⟩
  | 116 => ⟨S4x1x16, .f32⟩
  | 117 => ⟨S4x256x16, .f32⟩
  | 118 => ⟨S4x256x16, .f32⟩
  | 119 => ⟨S_, .f32⟩
  | 120 => ⟨S4x256, .f32⟩
  | 121 => ⟨S_, .i32⟩
  | 122 => ⟨S1, .i32⟩
  | 123 => ⟨S4x512x256, .f32⟩
  | 124 => ⟨S4x256x16, .f32⟩
  | 125 => ⟨S4x256x16, .f32⟩
  | 126 => ⟨S4x1x256, .f32⟩
  | 127 => ⟨S4x256, .f32⟩
  | _ => ⟨S4x512x256, .f32⟩

abbrev hbmTy0_57 (i : Nat) : BufTy := match i % 128 with
  | 0 => ⟨S4x256x1, .f32⟩
  | 1 => ⟨S4x1x16, .f32⟩
  | 2 => ⟨S4x16, .f32⟩
  | 3 => ⟨S4x1x16, .f32⟩
  | 4 => ⟨S4x256x16, .f32⟩
  | 5 => ⟨S4x256x16, .f32⟩
  | 6 => ⟨S4x256x16, .f32⟩
  | 7 => ⟨S4x256x16, .f32⟩
  | 8 => ⟨S4x1x16, .f32⟩
  | 9 => ⟨S4x16, .f32⟩
  | 10 => ⟨S4x1x16, .f32⟩
  | 11 => ⟨S4x256x16, .f32⟩
  | 12 => ⟨S4x256x16, .f32⟩
  | 13 => ⟨S_, .f32⟩
  | 14 => ⟨S4x256, .f32⟩
  | 15 => ⟨S_, .i32⟩
  | 16 => ⟨S1, .i32⟩
  | 17 => ⟨S4x512x256, .f32⟩
  | 18 => ⟨S4x256x16, .f32⟩
  | 19 => ⟨S4x256x16, .f32⟩
  | 20 => ⟨S4x1x256, .f32⟩
  | 21 => ⟨S4x256, .f32⟩
  | 22 => ⟨S4x256x1, .f32⟩
  | 23 => ⟨S4x1x16, .f32⟩
  | 24 => ⟨S4x16, .f32⟩
  | 25 => ⟨S4x1x16, .f32⟩
  | 26 => ⟨S4x256x16, .f32⟩
  | 27 => ⟨S4x256x16, .f32⟩
  | 28 => ⟨S4x256x16, .f32⟩
  | 29 => ⟨S4x256x16, .f32⟩
  | 30 => ⟨S4x1x16, .f32⟩
  | 31 => ⟨S4x16, .f32⟩
  | 32 => ⟨S4x1x16, .f32⟩
  | 33 => ⟨S4x256x16, .f32⟩
  | 34 => ⟨S4x256x16, .f32⟩
  | 35 => ⟨S_, .f32⟩
  | 36 => ⟨S4x256, .f32⟩
  | 37 => ⟨S_, .i32⟩
  | 38 => ⟨S1, .i32⟩
  | 39 => ⟨S4x512x256, .f32⟩
  | 40 => ⟨S4x256x16, .f32⟩
  | 41 => ⟨S4x256x16, .f32⟩
  | 42 => ⟨S4x1x256, .f32⟩
  | 43 => ⟨S4x256, .f32⟩
  | 44 => ⟨S4x256x1, .f32⟩
  | 45 => ⟨S4x1x16, .f32⟩
  | 46 => ⟨S4x16, .f32⟩
  | 47 => ⟨S4x1x16, .f32⟩
  | 48 => ⟨S4x256x16, .f32⟩
  | 49 => ⟨S4x256x16, .f32⟩
  | 50 => ⟨S4x256x16, .f32⟩
  | 51 => ⟨S4x256x16, .f32⟩
  | 52 => ⟨S4x1x16, .f32⟩
  | 53 => ⟨S4x16, .f32⟩
  | 54 => ⟨S4x1x16, .f32⟩
  | 55 => ⟨S4x256x16, .f32⟩
  | 56 => ⟨S4x256x16, .f32⟩
  | 57 => ⟨S_, .f32⟩
  | 58 => ⟨S4x256, .f32⟩
  | 59 => ⟨S_, .i32⟩
  | 60 => ⟨S1, .i32⟩
  | 61 => ⟨S4x512x256, .f32⟩
  | 62 => ⟨S4x256x16, .f32⟩
  | 63 => ⟨S4x256x16, .f32⟩
  | 64 => ⟨S4x1x256, .f32⟩
  | 65 => ⟨S4x256, .f32⟩
  | 66 => ⟨S4x256x1, .f32⟩
  | 67 => ⟨S4x1x16, .f32⟩
  | 68 => ⟨S4x16, .f32⟩
  | 69 => ⟨S4x1x16, .f32⟩
  | 70 => ⟨S4x256x16, .f32⟩
  | 71 => ⟨S4x256x16, .f32⟩
  | 72 => ⟨S4x256x16, .f32⟩
  | 73 => ⟨S4x256x16, .f32⟩
  | 74 => ⟨S4x1x16, .f32⟩
  | 75 => ⟨S4x16, .f32⟩
  | 76 => ⟨S4x1x16, .f32⟩
  | 77 => ⟨S4x256x16, .f32⟩
  | 78 => ⟨S4x256x16, .f32⟩
  | 79 => ⟨S_, .f32⟩
  | 80 => ⟨S4x256, .f32⟩
  | 81 => ⟨S_, .i32⟩
  | 82 => ⟨S1, .i32⟩
  | 83 => ⟨S4x512x256, .f32⟩
  | 84 => ⟨S4x256x16, .f32⟩
  | 85 => ⟨S4x256x16, .f32⟩
  | 86 => ⟨S4x1x256, .f32⟩
  | 87 => ⟨S4x256, .f32⟩
  | 88 => ⟨S4x256x1, .f32⟩
  | 89 => ⟨S4x1x16, .f32⟩
  | 90 => ⟨S4x16, .f32⟩
  | 91 => ⟨S4x1x16, .f32⟩
  | 92 => ⟨S4x256x16, .f32⟩
  | 93 => ⟨S4x256x16, .f32⟩
  | 94 => ⟨S4x256x16, .f32⟩
  | 95 => ⟨S4x256x16, .f32⟩
  | 96 => ⟨S4x1x16, .f32⟩
  | 97 => ⟨S4x16, .f32⟩
  | 98 => ⟨S4x1x16, .f32⟩
  | 99 => ⟨S4x256x16, .f32⟩
  | 100 => ⟨S4x256x16, .f32⟩
  | 101 => ⟨S_, .f32⟩
  | 102 => ⟨S4x256, .f32⟩
  | 103 => ⟨S_, .i32⟩
  | 104 => ⟨S1, .i32⟩
  | 105 => ⟨S4x512x256, .f32⟩
  | 106 => ⟨S4x256x16, .f32⟩
  | 107 => ⟨S4x256x16, .f32⟩
  | 108 => ⟨S4x1x256, .f32⟩
  | 109 => ⟨S4x256, .f32⟩
  | 110 => ⟨S4x256x1, .f32⟩
  | 111 => ⟨S4x1x16, .f32⟩
  | 112 => ⟨S4x16, .f32⟩
  | 113 => ⟨S4x1x16, .f32⟩
  | 114 => ⟨S4x256x16, .f32⟩
  | 115 => ⟨S4x256x16, .f32⟩
  | 116 => ⟨S4x256x16, .f32⟩
  | 117 => ⟨S4x256x16, .f32⟩
  | 118 => ⟨S4x1x16, .f32⟩
  | 119 => ⟨S4x16, .f32⟩
  | 120 => ⟨S4x1x16, .f32⟩
  | 121 => ⟨S4x256x16, .f32⟩
  | 122 => ⟨S4x256x16, .f32⟩
  | 123 => ⟨S_, .f32⟩
  | 124 => ⟨S4x256, .f32⟩
  | 125 => ⟨S_, .i32⟩
  | 126 => ⟨S1, .i32⟩
  | 127 => ⟨S4x512x256, .f32⟩
  | _ => ⟨S4x512x256, .f32⟩

abbrev hbmTy0_58 (i : Nat) : BufTy := match i % 128 with
  | 0 => ⟨S4x256x16, .f32⟩
  | 1 => ⟨S4x256x16, .f32⟩
  | 2 => ⟨S4x1x256, .f32⟩
  | 3 => ⟨S4x256, .f32⟩
  | 4 => ⟨S4x256x1, .f32⟩
  | 5 => ⟨S4x1x16, .f32⟩
  | 6 => ⟨S4x16, .f32⟩
  | 7 => ⟨S4x1x16, .f32⟩
  | 8 => ⟨S4x256x16, .f32⟩
  | 9 => ⟨S4x256x16, .f32⟩
  | 10 => ⟨S4x256x16, .f32⟩
  | 11 => ⟨S4x256x16, .f32⟩
  | 12 => ⟨S4x1x16, .f32⟩
  | 13 => ⟨S4x16, .f32⟩
  | 14 => ⟨S4x1x16, .f32⟩
  | 15 => ⟨S4x256x16, .f32⟩
  | 16 => ⟨S4x256x16, .f32⟩
  | 17 => ⟨S_, .f32⟩
  | 18 => ⟨S4x256, .f32⟩
  | 19 => ⟨S_, .i32⟩
  | 20 => ⟨S1, .i32⟩
  | 21 => ⟨S4x512x256, .f32⟩
  | 22 => ⟨S4x256x16, .f32⟩
  | 23 => ⟨S4x256x16, .f32⟩
  | 24 => ⟨S4x1x256, .f32⟩
  | 25 => ⟨S4x256, .f32⟩
  | 26 => ⟨S4x256x1, .f32⟩
  | 27 => ⟨S4x1x16, .f32⟩
  | 28 => ⟨S4x16, .f32⟩
  | 29 => ⟨S4x1x16, .f32⟩
  | 30 => ⟨S4x256x16, .f32⟩
  | 31 => ⟨S4x256x16, .f32⟩
  | 32 => ⟨S4x256x16, .f32⟩
  | 33 => ⟨S4x256x16, .f32⟩
  | 34 => ⟨S4x1x16, .f32⟩
  | 35 => ⟨S4x16, .f32⟩
  | 36 => ⟨S4x1x16, .f32⟩
  | 37 => ⟨S4x256x16, .f32⟩
  | 38 => ⟨S4x256x16, .f32⟩
  | 39 => ⟨S_, .f32⟩
  | 40 => ⟨S4x256, .f32⟩
  | 41 => ⟨S_, .i32⟩
  | 42 => ⟨S1, .i32⟩
  | 43 => ⟨S4x512x256, .f32⟩
  | 44 => ⟨S4x256x16, .f32⟩
  | 45 => ⟨S4x256x16, .f32⟩
  | 46 => ⟨S4x1x256, .f32⟩
  | 47 => ⟨S4x256, .f32⟩
  | 48 => ⟨S4x256x1, .f32⟩
  | 49 => ⟨S4x1x16, .f32⟩
  | 50 => ⟨S4x16, .f32⟩
  | 51 => ⟨S4x1x16, .f32⟩
  | 52 => ⟨S4x256x16, .f32⟩
  | 53 => ⟨S4x256x16, .f32⟩
  | 54 => ⟨S4x256x16, .f32⟩
  | 55 => ⟨S4x256x16, .f32⟩
  | 56 => ⟨S4x1x16, .f32⟩
  | 57 => ⟨S4x16, .f32⟩
  | 58 => ⟨S4x1x16, .f32⟩
  | 59 => ⟨S4x256x16, .f32⟩
  | 60 => ⟨S4x256x16, .f32⟩
  | 61 => ⟨S_, .f32⟩
  | 62 => ⟨S4x256, .f32⟩
  | 63 => ⟨S_, .i32⟩
  | 64 => ⟨S1, .i32⟩
  | 65 => ⟨S4x512x256, .f32⟩
  | 66 => ⟨S4x256x16, .f32⟩
  | 67 => ⟨S4x256x16, .f32⟩
  | 68 => ⟨S4x1x256, .f32⟩
  | 69 => ⟨S4x256, .f32⟩
  | 70 => ⟨S4x256x1, .f32⟩
  | 71 => ⟨S4x1x16, .f32⟩
  | 72 => ⟨S4x16, .f32⟩
  | 73 => ⟨S4x1x16, .f32⟩
  | 74 => ⟨S4x256x16, .f32⟩
  | 75 => ⟨S4x256x16, .f32⟩
  | 76 => ⟨S4x256x16, .f32⟩
  | 77 => ⟨S4x256x16, .f32⟩
  | 78 => ⟨S4x1x16, .f32⟩
  | 79 => ⟨S4x16, .f32⟩
  | 80 => ⟨S4x1x16, .f32⟩
  | 81 => ⟨S4x256x16, .f32⟩
  | 82 => ⟨S4x256x16, .f32⟩
  | 83 => ⟨S_, .f32⟩
  | 84 => ⟨S4x256, .f32⟩
  | 85 => ⟨S_, .i32⟩
  | 86 => ⟨S1, .i32⟩
  | 87 => ⟨S4x512x256, .f32⟩
  | 88 => ⟨S4x256x16, .f32⟩
  | 89 => ⟨S4x256x16, .f32⟩
  | 90 => ⟨S4x1x256, .f32⟩
  | 91 => ⟨S4x256, .f32⟩
  | 92 => ⟨S4x256x1, .f32⟩
  | 93 => ⟨S4x1x16, .f32⟩
  | 94 => ⟨S4x16, .f32⟩
  | 95 => ⟨S4x1x16, .f32⟩
  | 96 => ⟨S4x256x16, .f32⟩
  | 97 => ⟨S4x256x16, .f32⟩
  | 98 => ⟨S4x256x16, .f32⟩
  | 99 => ⟨S4x256x16, .f32⟩
  | 100 => ⟨S4x1x16, .f32⟩
  | 101 => ⟨S4x16, .f32⟩
  | 102 => ⟨S4x1x16, .f32⟩
  | 103 => ⟨S4x256x16, .f32⟩
  | 104 => ⟨S4x256x16, .f32⟩
  | 105 => ⟨S_, .f32⟩
  | 106 => ⟨S4x256, .f32⟩
  | 107 => ⟨S_, .i32⟩
  | 108 => ⟨S1, .i32⟩
  | 109 => ⟨S4x512x256, .f32⟩
  | 110 => ⟨S4x256x16, .f32⟩
  | 111 => ⟨S4x256x16, .f32⟩
  | 112 => ⟨S4x1x256, .f32⟩
  | 113 => ⟨S4x256, .f32⟩
  | 114 => ⟨S4x256x1, .f32⟩
  | 115 => ⟨S4x1x16, .f32⟩
  | 116 => ⟨S4x16, .f32⟩
  | 117 => ⟨S4x1x16, .f32⟩
  | 118 => ⟨S4x256x16, .f32⟩
  | 119 => ⟨S4x256x16, .f32⟩
  | 120 => ⟨S4x256x16, .f32⟩
  | 121 => ⟨S4x256x16, .f32⟩
  | 122 => ⟨S4x1x16, .f32⟩
  | 123 => ⟨S4x16, .f32⟩
  | 124 => ⟨S4x1x16, .f32⟩
  | 125 => ⟨S4x256x16, .f32⟩
  | 126 => ⟨S4x256x16, .f32⟩
  | 127 => ⟨S_, .f32⟩
  | _ => ⟨S4x512x256, .f32⟩

abbrev hbmTy0_59 (i : Nat) : BufTy := match i % 128 with
  | 0 => ⟨S4x256, .f32⟩
  | 1 => ⟨S_, .i32⟩
  | 2 => ⟨S1, .i32⟩
  | 3 => ⟨S4x512x256, .f32⟩
  | 4 => ⟨S4x256x16, .f32⟩
  | 5 => ⟨S4x256x16, .f32⟩
  | 6 => ⟨S4x1x256, .f32⟩
  | 7 => ⟨S4x256, .f32⟩
  | 8 => ⟨S4x256x1, .f32⟩
  | 9 => ⟨S4x1x16, .f32⟩
  | 10 => ⟨S4x16, .f32⟩
  | 11 => ⟨S4x1x16, .f32⟩
  | 12 => ⟨S4x256x16, .f32⟩
  | 13 => ⟨S4x256x16, .f32⟩
  | 14 => ⟨S4x256x16, .f32⟩
  | 15 => ⟨S4x256x16, .f32⟩
  | 16 => ⟨S4x1x16, .f32⟩
  | 17 => ⟨S4x16, .f32⟩
  | 18 => ⟨S4x1x16, .f32⟩
  | 19 => ⟨S4x256x16, .f32⟩
  | 20 => ⟨S4x256x16, .f32⟩
  | 21 => ⟨S_, .f32⟩
  | 22 => ⟨S4x256, .f32⟩
  | 23 => ⟨S_, .i32⟩
  | 24 => ⟨S1, .i32⟩
  | 25 => ⟨S4x512x256, .f32⟩
  | 26 => ⟨S4x256x16, .f32⟩
  | 27 => ⟨S4x256x16, .f32⟩
  | 28 => ⟨S4x1x256, .f32⟩
  | 29 => ⟨S4x256, .f32⟩
  | 30 => ⟨S4x256x1, .f32⟩
  | 31 => ⟨S4x1x16, .f32⟩
  | 32 => ⟨S4x16, .f32⟩
  | 33 => ⟨S4x1x16, .f32⟩
  | 34 => ⟨S4x256x16, .f32⟩
  | 35 => ⟨S4x256x16, .f32⟩
  | 36 => ⟨S4x256x16, .f32⟩
  | 37 => ⟨S4x256x16, .f32⟩
  | 38 => ⟨S4x1x16, .f32⟩
  | 39 => ⟨S4x16, .f32⟩
  | 40 => ⟨S4x1x16, .f32⟩
  | 41 => ⟨S4x256x16, .f32⟩
  | 42 => ⟨S4x256x16, .f32⟩
  | 43 => ⟨S_, .f32⟩
  | 44 => ⟨S4x256, .f32⟩
  | 45 => ⟨S_, .i32⟩
  | 46 => ⟨S1, .i32⟩
  | 47 => ⟨S4x512x256, .f32⟩
  | 48 => ⟨S4x256x16, .f32⟩
  | 49 => ⟨S4x256x16, .f32⟩
  | 50 => ⟨S4x1x256, .f32⟩
  | 51 => ⟨S4x256, .f32⟩
  | 52 => ⟨S4x256x1, .f32⟩
  | 53 => ⟨S4x1x16, .f32⟩
  | 54 => ⟨S4x16, .f32⟩
  | 55 => ⟨S4x1x16, .f32⟩
  | 56 => ⟨S4x256x16, .f32⟩
  | 57 => ⟨S4x256x16, .f32⟩
  | 58 => ⟨S4x256x16, .f32⟩
  | 59 => ⟨S4x256x16, .f32⟩
  | 60 => ⟨S4x1x16, .f32⟩
  | 61 => ⟨S4x16, .f32⟩
  | 62 => ⟨S4x1x16, .f32⟩
  | 63 => ⟨S4x256x16, .f32⟩
  | 64 => ⟨S4x256x16, .f32⟩
  | 65 => ⟨S_, .f32⟩
  | 66 => ⟨S4x256, .f32⟩
  | 67 => ⟨S_, .i32⟩
  | 68 => ⟨S1, .i32⟩
  | 69 => ⟨S4x512x256, .f32⟩
  | 70 => ⟨S4x256x16, .f32⟩
  | 71 => ⟨S4x256x16, .f32⟩
  | 72 => ⟨S4x1x256, .f32⟩
  | 73 => ⟨S4x256, .f32⟩
  | 74 => ⟨S4x256x1, .f32⟩
  | 75 => ⟨S4x1x16, .f32⟩
  | 76 => ⟨S4x16, .f32⟩
  | 77 => ⟨S4x1x16, .f32⟩
  | 78 => ⟨S4x256x16, .f32⟩
  | 79 => ⟨S4x256x16, .f32⟩
  | 80 => ⟨S4x256x16, .f32⟩
  | 81 => ⟨S4x256x16, .f32⟩
  | 82 => ⟨S4x1x16, .f32⟩
  | 83 => ⟨S4x16, .f32⟩
  | 84 => ⟨S4x1x16, .f32⟩
  | 85 => ⟨S4x256x16, .f32⟩
  | 86 => ⟨S4x256x16, .f32⟩
  | 87 => ⟨S_, .f32⟩
  | 88 => ⟨S4x256, .f32⟩
  | 89 => ⟨S_, .i32⟩
  | 90 => ⟨S1, .i32⟩
  | 91 => ⟨S4x512x256, .f32⟩
  | 92 => ⟨S4x256x16, .f32⟩
  | 93 => ⟨S4x256x16, .f32⟩
  | 94 => ⟨S4x1x256, .f32⟩
  | 95 => ⟨S4x256, .f32⟩
  | 96 => ⟨S4x256x1, .f32⟩
  | 97 => ⟨S4x1x16, .f32⟩
  | 98 => ⟨S4x16, .f32⟩
  | 99 => ⟨S4x1x16, .f32⟩
  | 100 => ⟨S4x256x16, .f32⟩
  | 101 => ⟨S4x256x16, .f32⟩
  | 102 => ⟨S4x256x16, .f32⟩
  | 103 => ⟨S4x256x16, .f32⟩
  | 104 => ⟨S4x1x16, .f32⟩
  | 105 => ⟨S4x16, .f32⟩
  | 106 => ⟨S4x1x16, .f32⟩
  | 107 => ⟨S4x256x16, .f32⟩
  | 108 => ⟨S4x256x16, .f32⟩
  | 109 => ⟨S_, .f32⟩
  | 110 => ⟨S4x256, .f32⟩
  | 111 => ⟨S_, .i32⟩
  | 112 => ⟨S1, .i32⟩
  | 113 => ⟨S4x512x256, .f32⟩
  | 114 => ⟨S4x256x16, .f32⟩
  | 115 => ⟨S4x256x16, .f32⟩
  | 116 => ⟨S4x1x256, .f32⟩
  | 117 => ⟨S4x256, .f32⟩
  | 118 => ⟨S4x256x1, .f32⟩
  | 119 => ⟨S4x1x16, .f32⟩
  | 120 => ⟨S4x16, .f32⟩
  | 121 => ⟨S4x1x16, .f32⟩
  | 122 => ⟨S4x256x16, .f32⟩
  | 123 => ⟨S4x256x16, .f32⟩
  | 124 => ⟨S4x256x16, .f32⟩
  | 125 => ⟨S4x256x16, .f32⟩
  | 126 => ⟨S4x1x16, .f32⟩
  | 127 => ⟨S4x16, .f32⟩
  | _ => ⟨S4x512x256, .f32⟩

abbrev hbmTy0_60 (i : Nat) : BufTy := match i % 128 with
  | 0 => ⟨S4x1x16, .f32⟩
  | 1 => ⟨S4x256x16, .f32⟩
  | 2 => ⟨S4x256x16, .f32⟩
  | 3 => ⟨S_, .f32⟩
  | 4 => ⟨S4x256, .f32⟩
  | 5 => ⟨S_, .i32⟩
  | 6 => ⟨S1, .i32⟩
  | 7 => ⟨S4x512x256, .f32⟩
  | 8 => ⟨S4x256x16, .f32⟩
  | 9 => ⟨S4x256x16, .f32⟩
  | 10 => ⟨S4x1x256, .f32⟩
  | 11 => ⟨S4x256, .f32⟩
  | 12 => ⟨S4x256x1, .f32⟩
  | 13 => ⟨S4x1x16, .f32⟩
  | 14 => ⟨S4x16, .f32⟩
  | 15 => ⟨S4x1x16, .f32⟩
  | 16 => ⟨S4x256x16, .f32⟩
  | 17 => ⟨S4x256x16, .f32⟩
  | 18 => ⟨S4x256x16, .f32⟩
  | 19 => ⟨S4x256x16, .f32⟩
  | 20 => ⟨S4x1x16, .f32⟩
  | 21 => ⟨S4x16, .f32⟩
  | 22 => ⟨S4x1x16, .f32⟩
  | 23 => ⟨S4x256x16, .f32⟩
  | 24 => ⟨S4x256x16, .f32⟩
  | 25 => ⟨S_, .f32⟩
  | 26 => ⟨S4x256, .f32⟩
  | 27 => ⟨S_, .i32⟩
  | 28 => ⟨S1, .i32⟩
  | 29 => ⟨S4x512x256, .f32⟩
  | 30 => ⟨S4x256x16, .f32⟩
  | 31 => ⟨S4x256x16, .f32⟩
  | 32 => ⟨S4x1x256, .f32⟩
  | 33 => ⟨S4x256, .f32⟩
  | 34 => ⟨S4x256x1, .f32⟩
  | 35 => ⟨S4x1x16, .f32⟩
  | 36 => ⟨S4x16, .f32⟩
  | 37 => ⟨S4x1x16, .f32⟩
  | 38 => ⟨S4x256x16, .f32⟩
  | 39 => ⟨S4x256x16, .f32⟩
  | 40 => ⟨S4x256x16, .f32⟩
  | 41 => ⟨S4x256x16, .f32⟩
  | 42 => ⟨S4x1x16, .f32⟩
  | 43 => ⟨S4x16, .f32⟩
  | 44 => ⟨S4x1x16, .f32⟩
  | 45 => ⟨S4x256x16, .f32⟩
  | 46 => ⟨S4x256x16, .f32⟩
  | 47 => ⟨S_, .f32⟩
  | 48 => ⟨S4x256, .f32⟩
  | 49 => ⟨S_, .i32⟩
  | 50 => ⟨S1, .i32⟩
  | 51 => ⟨S4x512x256, .f32⟩
  | 52 => ⟨S4x256x16, .f32⟩
  | 53 => ⟨S4x256x16, .f32⟩
  | 54 => ⟨S4x1x256, .f32⟩
  | 55 => ⟨S4x256, .f32⟩
  | 56 => ⟨S4x256x1, .f32⟩
  | 57 => ⟨S4x1x16, .f32⟩
  | 58 => ⟨S4x16, .f32⟩
  | 59 => ⟨S4x1x16, .f32⟩
  | 60 => ⟨S4x256x16, .f32⟩
  | 61 => ⟨S4x256x16, .f32⟩
  | 62 => ⟨S4x256x16, .f32⟩
  | 63 => ⟨S4x256x16, .f32⟩
  | 64 => ⟨S4x1x16, .f32⟩
  | 65 => ⟨S4x16, .f32⟩
  | 66 => ⟨S4x1x16, .f32⟩
  | 67 => ⟨S4x256x16, .f32⟩
  | 68 => ⟨S4x256x16, .f32⟩
  | 69 => ⟨S_, .f32⟩
  | 70 => ⟨S4x256, .f32⟩
  | 71 => ⟨S_, .i32⟩
  | 72 => ⟨S1, .i32⟩
  | 73 => ⟨S4x512x256, .f32⟩
  | 74 => ⟨S4x256x16, .f32⟩
  | 75 => ⟨S4x256x16, .f32⟩
  | 76 => ⟨S4x1x256, .f32⟩
  | 77 => ⟨S4x256, .f32⟩
  | 78 => ⟨S4x256x1, .f32⟩
  | 79 => ⟨S4x1x16, .f32⟩
  | 80 => ⟨S4x16, .f32⟩
  | 81 => ⟨S4x1x16, .f32⟩
  | 82 => ⟨S4x256x16, .f32⟩
  | 83 => ⟨S4x256x16, .f32⟩
  | 84 => ⟨S4x256x16, .f32⟩
  | 85 => ⟨S4x256x16, .f32⟩
  | 86 => ⟨S4x1x16, .f32⟩
  | 87 => ⟨S4x16, .f32⟩
  | 88 => ⟨S4x1x16, .f32⟩
  | 89 => ⟨S4x256x16, .f32⟩
  | 90 => ⟨S4x256x16, .f32⟩
  | 91 => ⟨S_, .f32⟩
  | 92 => ⟨S4x256, .f32⟩
  | 93 => ⟨S_, .i32⟩
  | 94 => ⟨S1, .i32⟩
  | 95 => ⟨S4x512x256, .f32⟩
  | 96 => ⟨S4x256x16, .f32⟩
  | 97 => ⟨S4x256x16, .f32⟩
  | 98 => ⟨S4x1x256, .f32⟩
  | 99 => ⟨S4x256, .f32⟩
  | 100 => ⟨S4x256x1, .f32⟩
  | 101 => ⟨S4x1x16, .f32⟩
  | 102 => ⟨S4x16, .f32⟩
  | 103 => ⟨S4x1x16, .f32⟩
  | 104 => ⟨S4x256x16, .f32⟩
  | 105 => ⟨S4x256x16, .f32⟩
  | 106 => ⟨S4x256x16, .f32⟩
  | 107 => ⟨S4x256x16, .f32⟩
  | 108 => ⟨S4x1x16, .f32⟩
  | 109 => ⟨S4x16, .f32⟩
  | 110 => ⟨S4x1x16, .f32⟩
  | 111 => ⟨S4x256x16, .f32⟩
  | 112 => ⟨S4x256x16, .f32⟩
  | 113 => ⟨S_, .f32⟩
  | 114 => ⟨S4x256, .f32⟩
  | 115 => ⟨S_, .i32⟩
  | 116 => ⟨S1, .i32⟩
  | 117 => ⟨S4x512x256, .f32⟩
  | 118 => ⟨S4x256x16, .f32⟩
  | 119 => ⟨S4x256x16, .f32⟩
  | 120 => ⟨S4x1x256, .f32⟩
  | 121 => ⟨S4x256, .f32⟩
  | 122 => ⟨S4x256x1, .f32⟩
  | 123 => ⟨S4x1x16, .f32⟩
  | 124 => ⟨S4x16, .f32⟩
  | 125 => ⟨S4x1x16, .f32⟩
  | 126 => ⟨S4x256x16, .f32⟩
  | 127 => ⟨S4x256x16, .f32⟩
  | _ => ⟨S4x512x256, .f32⟩

abbrev hbmTy0_61 (i : Nat) : BufTy := match i % 128 with
  | 0 => ⟨S4x256x16, .f32⟩
  | 1 => ⟨S4x256x16, .f32⟩
  | 2 => ⟨S4x1x16, .f32⟩
  | 3 => ⟨S4x16, .f32⟩
  | 4 => ⟨S4x1x16, .f32⟩
  | 5 => ⟨S4x256x16, .f32⟩
  | 6 => ⟨S4x256x16, .f32⟩
  | 7 => ⟨S_, .f32⟩
  | 8 => ⟨S4x256, .f32⟩
  | 9 => ⟨S_, .i32⟩
  | 10 => ⟨S1, .i32⟩
  | 11 => ⟨S4x512x256, .f32⟩
  | 12 => ⟨S4x256x16, .f32⟩
  | 13 => ⟨S4x256x16, .f32⟩
  | 14 => ⟨S4x1x256, .f32⟩
  | 15 => ⟨S4x256, .f32⟩
  | 16 => ⟨S4x256x1, .f32⟩
  | 17 => ⟨S4x1x16, .f32⟩
  | 18 => ⟨S4x16, .f32⟩
  | 19 => ⟨S4x1x16, .f32⟩
  | 20 => ⟨S4x256x16, .f32⟩
  | 21 => ⟨S4x256x16, .f32⟩
  | 22 => ⟨S4x256x16, .f32⟩
  | 23 => ⟨S4x256x16, .f32⟩
  | 24 => ⟨S4x1x16, .f32⟩
  | 25 => ⟨S4x16, .f32⟩
  | 26 => ⟨S4x1x16, .f32⟩
  | 27 => ⟨S4x256x16, .f32⟩
  | 28 => ⟨S4x256x16, .f32⟩
  | 29 => ⟨S_, .f32⟩
  | 30 => ⟨S4x256, .f32⟩
  | 31 => ⟨S_, .i32⟩
  | 32 => ⟨S1, .i32⟩
  | 33 => ⟨S4x512x256, .f32⟩
  | 34 => ⟨S4x256x16, .f32⟩
  | 35 => ⟨S4x256x16, .f32⟩
  | 36 => ⟨S4x1x256, .f32⟩
  | 37 => ⟨S4x256, .f32⟩
  | 38 => ⟨S4x256x1, .f32⟩
  | 39 => ⟨S4x1x16, .f32⟩
  | 40 => ⟨S4x16, .f32⟩
  | 41 => ⟨S4x1x16, .f32⟩
  | 42 => ⟨S4x256x16, .f32⟩
  | 43 => ⟨S4x256x16, .f32⟩
  | 44 => ⟨S4x256x16, .f32⟩
  | 45 => ⟨S4x256x16, .f32⟩
  | 46 => ⟨S4x1x16, .f32⟩
  | 47 => ⟨S4x16, .f32⟩
  | 48 => ⟨S4x1x16, .f32⟩
  | 49 => ⟨S4x256x16, .f32⟩
  | 50 => ⟨S4x256x16, .f32⟩
  | 51 => ⟨S_, .f32⟩
  | 52 => ⟨S4x256, .f32⟩
  | 53 => ⟨S_, .i32⟩
  | 54 => ⟨S1, .i32⟩
  | 55 => ⟨S4x512x256, .f32⟩
  | 56 => ⟨S4x256x16, .f32⟩
  | 57 => ⟨S4x256x16, .f32⟩
  | 58 => ⟨S4x1x256, .f32⟩
  | 59 => ⟨S4x256, .f32⟩
  | 60 => ⟨S4x256x1, .f32⟩
  | 61 => ⟨S4x1x16, .f32⟩
  | 62 => ⟨S4x16, .f32⟩
  | 63 => ⟨S4x1x16, .f32⟩
  | 64 => ⟨S4x256x16, .f32⟩
  | 65 => ⟨S4x256x16, .f32⟩
  | 66 => ⟨S4x256x16, .f32⟩
  | 67 => ⟨S4x256x16, .f32⟩
  | 68 => ⟨S4x1x16, .f32⟩
  | 69 => ⟨S4x16, .f32⟩
  | 70 => ⟨S4x1x16, .f32⟩
  | 71 => ⟨S4x256x16, .f32⟩
  | 72 => ⟨S4x256x16, .f32⟩
  | 73 => ⟨S_, .f32⟩
  | 74 => ⟨S4x256, .f32⟩
  | 75 => ⟨S_, .i32⟩
  | 76 => ⟨S1, .i32⟩
  | 77 => ⟨S4x512x256, .f32⟩
  | 78 => ⟨S4x256x16, .f32⟩
  | 79 => ⟨S4x256x16, .f32⟩
  | 80 => ⟨S4x1x256, .f32⟩
  | 81 => ⟨S4x256, .f32⟩
  | 82 => ⟨S4x256x1, .f32⟩
  | 83 => ⟨S4x1x16, .f32⟩
  | 84 => ⟨S4x16, .f32⟩
  | 85 => ⟨S4x1x16, .f32⟩
  | 86 => ⟨S4x256x16, .f32⟩
  | 87 => ⟨S4x256x16, .f32⟩
  | 88 => ⟨S4x256x16, .f32⟩
  | 89 => ⟨S4x256x16, .f32⟩
  | 90 => ⟨S4x1x16, .f32⟩
  | 91 => ⟨S4x16, .f32⟩
  | 92 => ⟨S4x1x16, .f32⟩
  | 93 => ⟨S4x256x16, .f32⟩
  | 94 => ⟨S4x256x16, .f32⟩
  | 95 => ⟨S_, .f32⟩
  | 96 => ⟨S4x256, .f32⟩
  | 97 => ⟨S_, .i32⟩
  | 98 => ⟨S1, .i32⟩
  | 99 => ⟨S4x512x256, .f32⟩
  | 100 => ⟨S4x256x16, .f32⟩
  | 101 => ⟨S4x256x16, .f32⟩
  | 102 => ⟨S4x1x256, .f32⟩
  | 103 => ⟨S4x256, .f32⟩
  | 104 => ⟨S4x256x1, .f32⟩
  | 105 => ⟨S4x1x16, .f32⟩
  | 106 => ⟨S4x16, .f32⟩
  | 107 => ⟨S4x1x16, .f32⟩
  | 108 => ⟨S4x256x16, .f32⟩
  | 109 => ⟨S4x256x16, .f32⟩
  | 110 => ⟨S4x256x16, .f32⟩
  | 111 => ⟨S4x256x16, .f32⟩
  | 112 => ⟨S4x1x16, .f32⟩
  | 113 => ⟨S4x16, .f32⟩
  | 114 => ⟨S4x1x16, .f32⟩
  | 115 => ⟨S4x256x16, .f32⟩
  | 116 => ⟨S4x256x16, .f32⟩
  | 117 => ⟨S_, .f32⟩
  | 118 => ⟨S4x256, .f32⟩
  | 119 => ⟨S_, .i32⟩
  | 120 => ⟨S1, .i32⟩
  | 121 => ⟨S4x512x256, .f32⟩
  | 122 => ⟨S4x256x16, .f32⟩
  | 123 => ⟨S4x256x16, .f32⟩
  | 124 => ⟨S4x1x256, .f32⟩
  | 125 => ⟨S4x256, .f32⟩
  | 126 => ⟨S4x256x1, .f32⟩
  | 127 => ⟨S4x1x16, .f32⟩
  | _ => ⟨S4x512x256, .f32⟩

abbrev hbmTy0_62 (i : Nat) : BufTy := match i % 128 with
  | 0 => ⟨S4x16, .f32⟩
  | 1 => ⟨S4x1x16, .f32⟩
  | 2 => ⟨S4x256x16, .f32⟩
  | 3 => ⟨S4x256x16, .f32⟩
  | 4 => ⟨S4x256x16, .f32⟩
  | 5 => ⟨S4x256x16, .f32⟩
  | 6 => ⟨S4x1x16, .f32⟩
  | 7 => ⟨S4x16, .f32⟩
  | 8 => ⟨S4x1x16, .f32⟩
  | 9 => ⟨S4x256x16, .f32⟩
  | 10 => ⟨S4x256x16, .f32⟩
  | 11 => ⟨S_, .f32⟩
  | 12 => ⟨S4x256, .f32⟩
  | 13 => ⟨S_, .i32⟩
  | 14 => ⟨S1, .i32⟩
  | 15 => ⟨S4x512x256, .f32⟩
  | 16 => ⟨S4x256x16, .f32⟩
  | 17 => ⟨S4x256x16, .f32⟩
  | 18 => ⟨S4x1x256, .f32⟩
  | 19 => ⟨S4x256, .f32⟩
  | 20 => ⟨S4x256x1, .f32⟩
  | 21 => ⟨S4x1x16, .f32⟩
  | 22 => ⟨S4x16, .f32⟩
  | 23 => ⟨S4x1x16, .f32⟩
  | 24 => ⟨S4x256x16, .f32⟩
  | 25 => ⟨S4x256x16, .f32⟩
  | 26 => ⟨S4x256x16, .f32⟩
  | 27 => ⟨S4x256x16, .f32⟩
  | 28 => ⟨S4x1x16, .f32⟩
  | 29 => ⟨S4x16, .f32⟩
  | 30 => ⟨S4x1x16, .f32⟩
  | 31 => ⟨S4x256x16, .f32⟩
  | 32 => ⟨S4x256x16, .f32⟩
  | 33 => ⟨S_, .f32⟩
  | 34 => ⟨S4x256, .f32⟩
  | 35 => ⟨S_, .i32⟩
  | 36 => ⟨S1, .i32⟩
  | 37 => ⟨S4x512x256, .f32⟩
  | 38 => ⟨S4x256x16, .f32⟩
  | 39 => ⟨S4x256x16, .f32⟩
  | 40 => ⟨S4x1x256, .f32⟩
  | 41 => ⟨S4x256, .f32⟩
  | 42 => ⟨S4x256x1, .f32⟩
  | 43 => ⟨S4x1x16, .f32⟩
  | 44 => ⟨S4x16, .f32⟩
  | 45 => ⟨S4x1x16, .f32⟩
  | 46 => ⟨S4x256x16, .f32⟩
  | 47 => ⟨S4x256x16, .f32⟩
  | 48 => ⟨S4x256x16, .f32⟩
  | 49 => ⟨S4x256x16, .f32⟩
  | 50 => ⟨S4x1x16, .f32⟩
  | 51 => ⟨S4x16, .f32⟩
  | 52 => ⟨S4x1x16, .f32⟩
  | 53 => ⟨S4x256x16, .f32⟩
  | 54 => ⟨S4x256x16, .f32⟩
  | 55 => ⟨S_, .f32⟩
  | 56 => ⟨S4x256, .f32⟩
  | 57 => ⟨S_, .i32⟩
  | 58 => ⟨S1, .i32⟩
  | 59 => ⟨S4x512x256, .f32⟩
  | 60 => ⟨S4x256x16, .f32⟩
  | 61 => ⟨S4x256x16, .f32⟩
  | 62 => ⟨S4x1x256, .f32⟩
  | 63 => ⟨S4x256, .f32⟩
  | 64 => ⟨S4x256x1, .f32⟩
  | 65 => ⟨S4x1x16, .f32⟩
  | 66 => ⟨S4x16, .f32⟩
  | 67 => ⟨S4x1x16, .f32⟩
  | 68 => ⟨S4x256x16, .f32⟩
  | 69 => ⟨S4x256x16, .f32⟩
  | 70 => ⟨S4x256x16, .f32⟩
  | 71 => ⟨S4x256x16, .f32⟩
  | 72 => ⟨S4x1x16, .f32⟩
  | 73 => ⟨S4x16, .f32⟩
  | 74 => ⟨S4x1x16, .f32⟩
  | 75 => ⟨S4x256x16, .f32⟩
  | 76 => ⟨S4x256x16, .f32⟩
  | 77 => ⟨S_, .f32⟩
  | 78 => ⟨S4x256, .f32⟩
  | 79 => ⟨S_, .i32⟩
  | 80 => ⟨S1, .i32⟩
  | 81 => ⟨S4x512x256, .f32⟩
  | 82 => ⟨S4x256x16, .f32⟩
  | 83 => ⟨S4x256x16, .f32⟩
  | 84 => ⟨S4x1x256, .f32⟩
  | 85 => ⟨S4x256, .f32⟩
  | 86 => ⟨S4x256x1, .f32⟩
  | 87 => ⟨S4x1x16, .f32⟩
  | 88 => ⟨S4x16, .f32⟩
  | 89 => ⟨S4x1x16, .f32⟩
  | 90 => ⟨S4x256x16, .f32⟩
  | 91 => ⟨S4x256x16, .f32⟩
  | 92 => ⟨S4x256x16, .f32⟩
  | 93 => ⟨S4x256x16, .f32⟩
  | 94 => ⟨S4x1x16, .f32⟩
  | 95 => ⟨S4x16, .f32⟩
  | 96 => ⟨S4x1x16, .f32⟩
  | 97 => ⟨S4x256x16, .f32⟩
  | 98 => ⟨S4x256x16, .f32⟩
  | 99 => ⟨S_, .f32⟩
  | 100 => ⟨S4x256, .f32⟩
  | 101 => ⟨S_, .i32⟩
  | 102 => ⟨S1, .i32⟩
  | 103 => ⟨S4x512x256, .f32⟩
  | 104 => ⟨S4x256x16, .f32⟩
  | 105 => ⟨S4x256x16, .f32⟩
  | 106 => ⟨S4x1x256, .f32⟩
  | 107 => ⟨S4x256, .f32⟩
  | 108 => ⟨S4x256x1, .f32⟩
  | 109 => ⟨S4x1x16, .f32⟩
  | 110 => ⟨S4x16, .f32⟩
  | 111 => ⟨S4x1x16, .f32⟩
  | 112 => ⟨S4x256x16, .f32⟩
  | 113 => ⟨S4x256x16, .f32⟩
  | 114 => ⟨S4x256x16, .f32⟩
  | 115 => ⟨S4x256x16, .f32⟩
  | 116 => ⟨S4x1x16, .f32⟩
  | 117 => ⟨S4x16, .f32⟩
  | 118 => ⟨S4x1x16, .f32⟩
  | 119 => ⟨S4x256x16, .f32⟩
  | 120 => ⟨S4x256x16, .f32⟩
  | 121 => ⟨S_, .f32⟩
  | 122 => ⟨S4x256, .f32⟩
  | 123 => ⟨S_, .i32⟩
  | 124 => ⟨S1, .i32⟩
  | 125 => ⟨S4x512x256, .f32⟩
  | 126 => ⟨S4x256x16, .f32⟩
  | 127 => ⟨S4x256x16, .f32⟩
  | _ => ⟨S4x512x256, .f32⟩

abbrev hbmTy0_63 (i : Nat) : BufTy := match i % 128 with
  | 0 => ⟨S4x1x256, .f32⟩
  | 1 => ⟨S4x256, .f32⟩
  | 2 => ⟨S4x256x1, .f32⟩
  | 3 => ⟨S4x1x16, .f32⟩
  | 4 => ⟨S4x16, .f32⟩
  | 5 => ⟨S4x1x16, .f32⟩
  | 6 => ⟨S4x256x16, .f32⟩
  | 7 => ⟨S4x256x16, .f32⟩
  | 8 => ⟨S4x256x16, .f32⟩
  | 9 => ⟨S4x256x16, .f32⟩
  | 10 => ⟨S4x1x16, .f32⟩
  | 11 => ⟨S4x16, .f32⟩
  | 12 => ⟨S4x1x16, .f32⟩
  | 13 => ⟨S4x256x16, .f32⟩
  | 14 => ⟨S4x256x16, .f32⟩
  | 15 => ⟨S_, .f32⟩
  | 16 => ⟨S4x256, .f32⟩
  | 17 => ⟨S_, .i32⟩
  | 18 => ⟨S1, .i32⟩
  | 19 => ⟨S4x512x256, .f32⟩
  | 20 => ⟨S4x256x16, .f32⟩
  | 21 => ⟨S4x256x16, .f32⟩
  | 22 => ⟨S4x1x256, .f32⟩
  | 23 => ⟨S4x256, .f32⟩
  | 24 => ⟨S4x256x1, .f32⟩
  | 25 => ⟨S4x1x16, .f32⟩
  | 26 => ⟨S4x16, .f32⟩
  | 27 => ⟨S4x1x16, .f32⟩
  | 28 => ⟨S4x256x16, .f32⟩
  | 29 => ⟨S4x256x16, .f32⟩
  | 30 => ⟨S4x256x16, .f32⟩
  | 31 => ⟨S4x256x16, .f32⟩
  | 32 => ⟨S4x1x16, .f32⟩
  | 33 => ⟨S4x16, .f32⟩
  | 34 => ⟨S4x1x16, .f32⟩
  | 35 => ⟨S4x256x16, .f32⟩
  | 36 => ⟨S4x256x16, .f32⟩
  | 37 => ⟨S_, .f32⟩
  | 38 => ⟨S4x256, .f32⟩
  | 39 => ⟨S_, .i32⟩
  | 40 => ⟨S1, .i32⟩
  | 41 => ⟨S4x512x256, .f32⟩
  | 42 => ⟨S4x256x16, .f32⟩
  | 43 => ⟨S4x256x16, .f32⟩
  | 44 => ⟨S4x1x256, .f32⟩
  | 45 => ⟨S4x256, .f32⟩
  | 46 => ⟨S4x256x1, .f32⟩
  | 47 => ⟨S4x1x16, .f32⟩
  | 48 => ⟨S4x16, .f32⟩
  | 49 => ⟨S4x1x16, .f32⟩
  | 50 => ⟨S4x256x16, .f32⟩
  | 51 => ⟨S4x256x16, .f32⟩
  | 52 => ⟨S4x256x16, .f32⟩
  | 53 => ⟨S4x256x16, .f32⟩
  | 54 => ⟨S4x1x16, .f32⟩
  | 55 => ⟨S4x16, .f32⟩
  | 56 => ⟨S4x1x16, .f32⟩
  | 57 => ⟨S4x256x16, .f32⟩
  | 58 => ⟨S4x256x16, .f32⟩
  | 59 => ⟨S_, .f32⟩
  | 60 => ⟨S4x256, .f32⟩
  | 61 => ⟨S_, .i32⟩
  | 62 => ⟨S1, .i32⟩
  | 63 => ⟨S4x512x256, .f32⟩
  | 64 => ⟨S4x256x16, .f32⟩
  | 65 => ⟨S4x256x16, .f32⟩
  | 66 => ⟨S4x1x256, .f32⟩
  | 67 => ⟨S4x256, .f32⟩
  | 68 => ⟨S4x256x1, .f32⟩
  | 69 => ⟨S4x1x16, .f32⟩
  | 70 => ⟨S4x16, .f32⟩
  | 71 => ⟨S4x1x16, .f32⟩
  | 72 => ⟨S4x256x16, .f32⟩
  | 73 => ⟨S4x256x16, .f32⟩
  | 74 => ⟨S4x256x16, .f32⟩
  | 75 => ⟨S4x256x16, .f32⟩
  | 76 => ⟨S4x1x16, .f32⟩
  | 77 => ⟨S4x16, .f32⟩
  | 78 => ⟨S4x1x16, .f32⟩
  | 79 => ⟨S4x256x16, .f32⟩
  | 80 => ⟨S4x256x16, .f32⟩
  | 81 => ⟨S_, .f32⟩
  | 82 => ⟨S4x256, .f32⟩
  | 83 => ⟨S_, .i32⟩
  | 84 => ⟨S1, .i32⟩
  | 85 => ⟨S4x512x256, .f32⟩
  | 86 => ⟨S4x256x16, .f32⟩
  | 87 => ⟨S4x256x16, .f32⟩
  | 88 => ⟨S4x1x256, .f32⟩
  | 89 => ⟨S4x256, .f32⟩
  | 90 => ⟨S4x256x1, .f32⟩
  | 91 => ⟨S4x1x16, .f32⟩
  | 92 => ⟨S4x16, .f32⟩
  | 93 => ⟨S4x1x16, .f32⟩
  | 94 => ⟨S4x256x16, .f32⟩
  | 95 => ⟨S4x256x16, .f32⟩
  | 96 => ⟨S4x256x16, .f32⟩
  | 97 => ⟨S4x256x16, .f32⟩
  | 98 => ⟨S4x1x16, .f32⟩
  | 99 => ⟨S4x16, .f32⟩
  | 100 => ⟨S4x1x16, .f32⟩
  | 101 => ⟨S4x256x16, .f32⟩
  | 102 => ⟨S4x256x16, .f32⟩
  | 103 => ⟨S_, .f32⟩
  | 104 => ⟨S4x256, .f32⟩
  | 105 => ⟨S_, .i32⟩
  | 106 => ⟨S1, .i32⟩
  | 107 => ⟨S4x512x256, .f32⟩
  | 108 => ⟨S4x256x16, .f32⟩
  | 109 => ⟨S4x256x16, .f32⟩
  | 110 => ⟨S4x1x256, .f32⟩
  | 111 => ⟨S4x256, .f32⟩
  | 112 => ⟨S4x256x1, .f32⟩
  | 113 => ⟨S4x1x16, .f32⟩
  | 114 => ⟨S4x16, .f32⟩
  | 115 => ⟨S4x1x16, .f32⟩
  | 116 => ⟨S4x256x16, .f32⟩
  | 117 => ⟨S4x256x16, .f32⟩
  | 118 => ⟨S4x256x16, .f32⟩
  | 119 => ⟨S4x256x16, .f32⟩
  | 120 => ⟨S4x1x16, .f32⟩
  | 121 => ⟨S4x16, .f32⟩
  | 122 => ⟨S4x1x16, .f32⟩
  | 123 => ⟨S4x256x16, .f32⟩
  | 124 => ⟨S4x256x16, .f32⟩
  | 125 => ⟨S_, .f32⟩
  | 126 => ⟨S4x256, .f32⟩
  | 127 => ⟨S_, .i32⟩
  | _ => ⟨S4x512x256, .f32⟩

abbrev hbmTy0_64 (i : Nat) : BufTy := match i % 128 with
  | 0 => ⟨S1, .i32⟩
  | 1 => ⟨S4x512x256, .f32⟩
  | 2 => ⟨S4x256x16, .f32⟩
  | 3 => ⟨S4x256x16, .f32⟩
  | 4 => ⟨S4x1x256, .f32⟩
  | 5 => ⟨S4x256, .f32⟩
  | 6 => ⟨S4x256x1, .f32⟩
  | 7 => ⟨S4x1x16, .f32⟩
  | 8 => ⟨S4x16, .f32⟩
  | 9 => ⟨S4x1x16, .f32⟩
  | 10 => ⟨S4x256x16, .f32⟩
  | 11 => ⟨S4x256x16, .f32⟩
  | 12 => ⟨S4x256x16, .f32⟩
  | 13 => ⟨S4x256x16, .f32⟩
  | 14 => ⟨S4x1x16, .f32⟩
  | 15 => ⟨S4x16, .f32⟩
  | 16 => ⟨S4x1x16, .f32⟩
  | 17 => ⟨S4x256x16, .f32⟩
  | 18 => ⟨S4x256x16, .f32⟩
  | 19 => ⟨S_, .f32⟩
  | 20 => ⟨S4x256, .f32⟩
  | 21 => ⟨S_, .i32⟩
  | 22 => ⟨S1, .i32⟩
  | 23 => ⟨S4x512x256, .f32⟩
  | 24 => ⟨S4x256x16, .f32⟩
  | 25 => ⟨S4x256x16, .f32⟩
  | 26 => ⟨S4x1x256, .f32⟩
  | 27 => ⟨S4x256, .f32⟩
  | 28 => ⟨S4x256x1, .f32⟩
  | 29 => ⟨S4x1x16, .f32⟩
  | 30 => ⟨S4x16, .f32⟩
  | 31 => ⟨S4x1x16, .f32⟩
  | 32 => ⟨S4x256x16, .f32⟩
  | 33 => ⟨S4x256x16, .f32⟩
  | 34 => ⟨S4x256x16, .f32⟩
  | 35 => ⟨S4x256x16, .f32⟩
  | 36 => ⟨S4x1x16, .f32⟩
  | 37 => ⟨S4x16, .f32⟩
  | 38 => ⟨S4x1x16, .f32⟩
  | 39 => ⟨S4x256x16, .f32⟩
  | 40 => ⟨S4x256x16, .f32⟩
  | 41 => ⟨S_, .f32⟩
  | 42 => ⟨S4x256, .f32⟩
  | 43 => ⟨S_, .i32⟩
  | 44 => ⟨S1, .i32⟩
  | 45 => ⟨S4x512x256, .f32⟩
  | 46 => ⟨S4x256x16, .f32⟩
  | 47 => ⟨S4x256x16, .f32⟩
  | 48 => ⟨S4x1x256, .f32⟩
  | 49 => ⟨S4x256, .f32⟩
  | 50 => ⟨S4x256x1, .f32⟩
  | 51 => ⟨S4x1x16, .f32⟩
  | 52 => ⟨S4x16, .f32⟩
  | 53 => ⟨S4x1x16, .f32⟩
  | 54 => ⟨S4x256x16, .f32⟩
  | 55 => ⟨S4x256x16, .f32⟩
  | 56 => ⟨S4x256x16, .f32⟩
  | 57 => ⟨S4x256x16, .f32⟩
  | 58 => ⟨S4x1x16, .f32⟩
  | 59 => ⟨S4x16, .f32⟩
  | 60 => ⟨S4x1x16, .f32⟩
  | 61 => ⟨S4x256x16, .f32⟩
  | 62 => ⟨S4x256x16, .f32⟩
  | 63 => ⟨S_, .f32⟩
  | 64 => ⟨S4x256, .f32⟩
  | 65 => ⟨S_, .i32⟩
  | 66 => ⟨S1, .i32⟩
  | 67 => ⟨S4x512x256, .f32⟩
  | 68 => ⟨S4x256x16, .f32⟩
  | 69 => ⟨S4x256x16, .f32⟩
  | 70 => ⟨S4x1x256, .f32⟩
  | 71 => ⟨S4x256, .f32⟩
  | 72 => ⟨S4x256x1, .f32⟩
  | 73 => ⟨S4x1x16, .f32⟩
  | 74 => ⟨S4x16, .f32⟩
  | 75 => ⟨S4x1x16, .f32⟩
  | 76 => ⟨S4x256x16, .f32⟩
  | 77 => ⟨S4x256x16, .f32⟩
  | 78 => ⟨S4x256x16, .f32⟩
  | 79 => ⟨S4x256x16, .f32⟩
  | 80 => ⟨S4x1x16, .f32⟩
  | 81 => ⟨S4x16, .f32⟩
  | 82 => ⟨S4x1x16, .f32⟩
  | 83 => ⟨S4x256x16, .f32⟩
  | 84 => ⟨S4x256x16, .f32⟩
  | 85 => ⟨S_, .f32⟩
  | 86 => ⟨S4x256, .f32⟩
  | 87 => ⟨S_, .i32⟩
  | 88 => ⟨S1, .i32⟩
  | 89 => ⟨S4x512x256, .f32⟩
  | 90 => ⟨S4x256x16, .f32⟩
  | 91 => ⟨S4x256x16, .f32⟩
  | 92 => ⟨S4x1x256, .f32⟩
  | 93 => ⟨S4x256, .f32⟩
  | 94 => ⟨S4x256x1, .f32⟩
  | 95 => ⟨S4x1x16, .f32⟩
  | 96 => ⟨S4x16, .f32⟩
  | 97 => ⟨S4x1x16, .f32⟩
  | 98 => ⟨S4x256x16, .f32⟩
  | 99 => ⟨S4x256x16, .f32⟩
  | 100 => ⟨S4x256x16, .f32⟩
  | 101 => ⟨S4x256x16, .f32⟩
  | 102 => ⟨S4x1x16, .f32⟩
  | 103 => ⟨S4x16, .f32⟩
  | 104 => ⟨S4x1x16, .f32⟩
  | 105 => ⟨S4x256x16, .f32⟩
  | 106 => ⟨S4x256x16, .f32⟩
  | 107 => ⟨S_, .f32⟩
  | 108 => ⟨S4x256, .f32⟩
  | 109 => ⟨S_, .i32⟩
  | 110 => ⟨S1, .i32⟩
  | 111 => ⟨S4x512x256, .f32⟩
  | 112 => ⟨S4x256x16, .f32⟩
  | 113 => ⟨S4x256x16, .f32⟩
  | 114 => ⟨S4x1x256, .f32⟩
  | 115 => ⟨S4x256, .f32⟩
  | 116 => ⟨S4x256x1, .f32⟩
  | 117 => ⟨S4x1x16, .f32⟩
  | 118 => ⟨S4x16, .f32⟩
  | 119 => ⟨S4x1x16, .f32⟩
  | 120 => ⟨S4x256x16, .f32⟩
  | 121 => ⟨S4x256x16, .f32⟩
  | 122 => ⟨S4x256x16, .f32⟩
  | 123 => ⟨S4x256x16, .f32⟩
  | 124 => ⟨S4x1x16, .f32⟩
  | 125 => ⟨S4x16, .f32⟩
  | 126 => ⟨S4x1x16, .f32⟩
  | 127 => ⟨S4x256x16, .f32⟩
  | _ => ⟨S4x512x256, .f32⟩

abbrev hbmTy0_65 (i : Nat) : BufTy := match i % 128 with
  | 0 => ⟨S4x256x16, .f32⟩
  | 1 => ⟨S_, .f32⟩
  | 2 => ⟨S4x256, .f32⟩
  | 3 => ⟨S_, .i32⟩
  | 4 => ⟨S1, .i32⟩
  | 5 => ⟨S4x512x256, .f32⟩
  | 6 => ⟨S4x256x16, .f32⟩
  | 7 => ⟨S4x256x16, .f32⟩
  | 8 => ⟨S4x1x256, .f32⟩
  | 9 => ⟨S4x256, .f32⟩
  | 10 => ⟨S4x256x1, .f32⟩
  | 11 => ⟨S4x1x16, .f32⟩
  | 12 => ⟨S4x16, .f32⟩
  | 13 => ⟨S4x1x16, .f32⟩
  | 14 => ⟨S4x256x16, .f32⟩
  | 15 => ⟨S4x256x16, .f32⟩
  | 16 => ⟨S4x256x16, .f32⟩
  | 17 => ⟨S4x256x16, .f32⟩
  | 18 => ⟨S4x1x16, .f32⟩
  | 19 => ⟨S4x16, .f32⟩
  | 20 => ⟨S4x1x16, .f32⟩
  | 21 => ⟨S4x256x16, .f32⟩
  | 22 => ⟨S4x256x16, .f32⟩
  | 23 => ⟨S_, .f32⟩
  | 24 => ⟨S4x256, .f32⟩
  | 25 => ⟨S_, .i32⟩
  | 26 => ⟨S1, .i32⟩
  | 27 => ⟨S4x512x256, .f32⟩
  | 28 => ⟨S4x256x16, .f32⟩
  | 29 => ⟨S4x256x16, .f32⟩
  | 30 => ⟨S4x1x256, .f32⟩
  | 31 => ⟨S4x256, .f32⟩
  | 32 => ⟨S4x256x1, .f32⟩
  | 33 => ⟨S4x1x16, .f32⟩
  | 34 => ⟨S4x16, .f32⟩
  | 35 => ⟨S4x1x16, .f32⟩
  | 36 => ⟨S4x256x16, .f32⟩
  | 37 => ⟨S4x256x16, .f32⟩
  | 38 => ⟨S4x256x16, .f32⟩
  | 39 => ⟨S4x256x16, .f32⟩
  | 40 => ⟨S4x1x16, .f32⟩
  | 41 => ⟨S4x16, .f32⟩
  | 42 => ⟨S4x1x16, .f32⟩
  | 43 => ⟨S4x256x16, .f32⟩
  | 44 => ⟨S4x256x16, .f32⟩
  | 45 => ⟨S_, .f32⟩
  | 46 => ⟨S4x256, .f32⟩
  | 47 => ⟨S_, .i32⟩
  | 48 => ⟨S1, .i32⟩
  | 49 => ⟨S4x512x256, .f32⟩
  | 50 => ⟨S4x256x16, .f32⟩
  | 51 => ⟨S4x256x16, .f32⟩
  | 52 => ⟨S4x1x256, .f32⟩
  | 53 => ⟨S4x256, .f32⟩
  | 54 => ⟨S4x256x1, .f32⟩
  | 55 => ⟨S4x1x16, .f32⟩
  | 56 => ⟨S4x16, .f32⟩
  | 57 => ⟨S4x1x16, .f32⟩
  | 58 => ⟨S4x256x16, .f32⟩
  | 59 => ⟨S4x256x16, .f32⟩
  | 60 => ⟨S4x256x16, .f32⟩
  | 61 => ⟨S4x256x16, .f32⟩
  | 62 => ⟨S4x1x16, .f32⟩
  | 63 => ⟨S4x16, .f32⟩
  | 64 => ⟨S4x1x16, .f32⟩
  | 65 => ⟨S4x256x16, .f32⟩
  | 66 => ⟨S4x256x16, .f32⟩
  | 67 => ⟨S_, .f32⟩
  | 68 => ⟨S4x256, .f32⟩
  | 69 => ⟨S_, .i32⟩
  | 70 => ⟨S1, .i32⟩
  | 71 => ⟨S4x512x256, .f32⟩
  | 72 => ⟨S4x256x16, .f32⟩
  | 73 => ⟨S4x256x16, .f32⟩
  | 74 => ⟨S4x1x256, .f32⟩
  | 75 => ⟨S4x256, .f32⟩
  | 76 => ⟨S4x256x1, .f32⟩
  | 77 => ⟨S4x1x16, .f32⟩
  | 78 => ⟨S4x16, .f32⟩
  | 79 => ⟨S4x1x16, .f32⟩
  | 80 => ⟨S4x256x16, .f32⟩
  | 81 => ⟨S4x256x16, .f32⟩
  | 82 => ⟨S4x256x16, .f32⟩
  | 83 => ⟨S4x256x16, .f32⟩
  | 84 => ⟨S4x1x16, .f32⟩
  | 85 => ⟨S4x16, .f32⟩
  | 86 => ⟨S4x1x16, .f32⟩
  | 87 => ⟨S4x256x16, .f32⟩
  | 88 => ⟨S4x256x16, .f32⟩
  | 89 => ⟨S_, .f32⟩
  | 90 => ⟨S4x256, .f32⟩
  | 91 => ⟨S_, .i32⟩
  | 92 => ⟨S1, .i32⟩
  | 93 => ⟨S4x512x256, .f32⟩
  | 94 => ⟨S4x256x16, .f32⟩
  | 95 => ⟨S4x256x16, .f32⟩
  | 96 => ⟨S4x1x256, .f32⟩
  | 97 => ⟨S4x256, .f32⟩
  | 98 => ⟨S4x256x1, .f32⟩
  | 99 => ⟨S4x1x16, .f32⟩
  | 100 => ⟨S4x16, .f32⟩
  | 101 => ⟨S4x1x16, .f32⟩
  | 102 => ⟨S4x256x16, .f32⟩
  | 103 => ⟨S4x256x16, .f32⟩
  | 104 => ⟨S4x256x16, .f32⟩
  | 105 => ⟨S4x256x16, .f32⟩
  | 106 => ⟨S4x1x16, .f32⟩
  | 107 => ⟨S4x16, .f32⟩
  | 108 => ⟨S4x1x16, .f32⟩
  | 109 => ⟨S4x256x16, .f32⟩
  | 110 => ⟨S4x256x16, .f32⟩
  | 111 => ⟨S_, .f32⟩
  | 112 => ⟨S4x256, .f32⟩
  | 113 => ⟨S_, .i32⟩
  | 114 => ⟨S1, .i32⟩
  | 115 => ⟨S4x512x256, .f32⟩
  | 116 => ⟨S4x256x16, .f32⟩
  | 117 => ⟨S4x256x16, .f32⟩
  | 118 => ⟨S4x1x256, .f32⟩
  | 119 => ⟨S4x256, .f32⟩
  | 120 => ⟨S4x256x1, .f32⟩
  | 121 => ⟨S4x1x16, .f32⟩
  | 122 => ⟨S4x16, .f32⟩
  | 123 => ⟨S4x1x16, .f32⟩
  | 124 => ⟨S4x256x16, .f32⟩
  | 125 => ⟨S4x256x16, .f32⟩
  | 126 => ⟨S4x256x16, .f32⟩
  | 127 => ⟨S4x256x16, .f32⟩
  | _ => ⟨S4x512x256, .f32⟩

abbrev hbmTy0_66 (i : Nat) : BufTy := match i % 128 with
  | 0 => ⟨S4x1x16, .f32⟩
  | 1 => ⟨S4x16, .f32⟩
  | 2 => ⟨S4x1x16, .f32⟩
  | 3 => ⟨S4x256x16, .f32⟩
  | 4 => ⟨S4x256x16, .f32⟩
  | 5 => ⟨S_, .f32⟩
  | 6 => ⟨S4x256, .f32⟩
  | 7 => ⟨S_, .i32⟩
  | 8 => ⟨S1, .i32⟩
  | 9 => ⟨S4x512x256, .f32⟩
  | 10 => ⟨S4x256x16, .f32⟩
  | 11 => ⟨S4x256x16, .f32⟩
  | 12 => ⟨S4x1x256, .f32⟩
  | 13 => ⟨S4x256, .f32⟩
  | 14 => ⟨S4x256x1, .f32⟩
  | 15 => ⟨S4x1x16, .f32⟩
  | 16 => ⟨S4x16, .f32⟩
  | 17 => ⟨S4x1x16, .f32⟩
  | 18 => ⟨S4x256x16, .f32⟩
  | 19 => ⟨S4x256x16, .f32⟩
  | 20 => ⟨S4x256x16, .f32⟩
  | 21 => ⟨S4x256x16, .f32⟩
  | 22 => ⟨S4x1x16, .f32⟩
  | 23 => ⟨S4x16, .f32⟩
  | 24 => ⟨S4x1x16, .f32⟩
  | 25 => ⟨S4x256x16, .f32⟩
  | 26 => ⟨S4x256x16, .f32⟩
  | 27 => ⟨S_, .f32⟩
  | 28 => ⟨S4x256, .f32⟩
  | 29 => ⟨S_, .i32⟩
  | 30 => ⟨S1, .i32⟩
  | 31 => ⟨S4x512x256, .f32⟩
  | 32 => ⟨S4x256x16, .f32⟩
  | 33 => ⟨S4x256x16, .f32⟩
  | 34 => ⟨S4x1x256, .f32⟩
  | 35 => ⟨S4x256, .f32⟩
  | 36 => ⟨S4x256x1, .f32⟩
  | 37 => ⟨S4x1x16, .f32⟩
  | 38 => ⟨S4x16, .f32⟩
  | 39 => ⟨S4x1x16, .f32⟩
  | 40 => ⟨S4x256x16, .f32⟩
  | 41 => ⟨S4x256x16, .f32⟩
  | 42 => ⟨S4x256x16, .f32⟩
  | 43 => ⟨S4x256x16, .f32⟩
  | 44 => ⟨S4x1x16, .f32⟩
  | 45 => ⟨S4x16, .f32⟩
  | 46 => ⟨S4x1x16, .f32⟩
  | 47 => ⟨S4x256x16, .f32⟩
  | 48 => ⟨S4x256x16, .f32⟩
  | 49 => ⟨S_, .f32⟩
  | 50 => ⟨S4x256, .f32⟩
  | 51 => ⟨S_, .i32⟩
  | 52 => ⟨S1, .i32⟩
  | 53 => ⟨S4x512x256, .f32⟩
  | 54 => ⟨S4x256x16, .f32⟩
  | 55 => ⟨S4x256x16, .f32⟩
  | 56 => ⟨S4x1x256, .f32⟩
  | 57 => ⟨S4x256, .f32⟩
  | 58 => ⟨S4x256x1, .f32⟩
  | 59 => ⟨S4x1x16, .f32⟩
  | 60 => ⟨S4x16, .f32⟩
  | 61 => ⟨S4x1x16, .f32⟩
  | 62 => ⟨S4x256x16, .f32⟩
  | 63 => ⟨S4x256x16, .f32⟩
  | 64 => ⟨S4x256x16, .f32⟩
  | 65 => ⟨S4x256x16, .f32⟩
  | 66 => ⟨S4x1x16, .f32⟩
  | 67 => ⟨S4x16, .f32⟩
  | 68 => ⟨S4x1x16, .f32⟩
  | 69 => ⟨S4x256x16, .f32⟩
  | 70 => ⟨S4x256x16, .f32⟩
  | 71 => ⟨S_, .f32⟩
  | 72 => ⟨S4x256, .f32⟩
  | 73 => ⟨S_, .i32⟩
  | 74 => ⟨S1, .i32⟩
  | 75 => ⟨S4x512x256, .f32⟩
  | 76 => ⟨S4x256x16, .f32⟩
  | 77 => ⟨S4x256x16, .f32⟩
  | 78 => ⟨S4x1x256, .f32⟩
  | 79 => ⟨S4x256, .f32⟩
  | 80 => ⟨S4x256x1, .f32⟩
  | 81 => ⟨S4x1x16, .f32⟩
  | 82 => ⟨S4x16, .f32⟩
  | 83 => ⟨S4x1x16, .f32⟩
  | 84 => ⟨S4x256x16, .f32⟩
  | 85 => ⟨S4x256x16, .f32⟩
  | 86 => ⟨S4x256x16, .f32⟩
  | 87 => ⟨S4x256x16, .f32⟩
  | 88 => ⟨S4x1x16, .f32⟩
  | 89 => ⟨S4x16, .f32⟩
  | 90 => ⟨S4x1x16, .f32⟩
  | 91 => ⟨S4x256x16, .f32⟩
  | 92 => ⟨S4x256x16, .f32⟩
  | 93 => ⟨S_, .f32⟩
  | 94 => ⟨S4x256, .f32⟩
  | 95 => ⟨S_, .i32⟩
  | 96 => ⟨S1, .i32⟩
  | 97 => ⟨S4x512x256, .f32⟩
  | 98 => ⟨S4x256x16, .f32⟩
  | 99 => ⟨S4x256x16, .f32⟩
  | 100 => ⟨S4x1x256, .f32⟩
  | 101 => ⟨S4x256, .f32⟩
  | 102 => ⟨S4x256x1, .f32⟩
  | 103 => ⟨S4x1x16, .f32⟩
  | 104 => ⟨S4x16, .f32⟩
  | 105 => ⟨S4x1x16, .f32⟩
  | 106 => ⟨S4x256x16, .f32⟩
  | 107 => ⟨S4x256x16, .f32⟩
  | 108 => ⟨S4x256x16, .f32⟩
  | 109 => ⟨S4x256x16, .f32⟩
  | 110 => ⟨S4x1x16, .f32⟩
  | 111 => ⟨S4x16, .f32⟩
  | 112 => ⟨S4x1x16, .f32⟩
  | 113 => ⟨S4x256x16, .f32⟩
  | 114 => ⟨S4x256x16, .f32⟩
  | 115 => ⟨S_, .f32⟩
  | 116 => ⟨S4x256, .f32⟩
  | 117 => ⟨S_, .i32⟩
  | 118 => ⟨S1, .i32⟩
  | 119 => ⟨S4x512x256, .f32⟩
  | 120 => ⟨S4x256x16, .f32⟩
  | 121 => ⟨S4x256x16, .f32⟩
  | 122 => ⟨S4x1x256, .f32⟩
  | 123 => ⟨S4x256, .f32⟩
  | 124 => ⟨S4x256x1, .f32⟩
  | 125 => ⟨S4x1x16, .f32⟩
  | 126 => ⟨S4x16, .f32⟩
  | 127 => ⟨S4x1x16, .f32⟩
  | _ => ⟨S4x512x256, .f32⟩

abbrev hbmTy0_67 (i : Nat) : BufTy := match i % 128 with
  | 0 => ⟨S4x256x16, .f32⟩
  | 1 => ⟨S4x256x16, .f32⟩
  | 2 => ⟨S4x256x16, .f32⟩
  | 3 => ⟨S4x256x16, .f32⟩
  | 4 => ⟨S4x1x16, .f32⟩
  | 5 => ⟨S4x16, .f32⟩
  | 6 => ⟨S4x1x16, .f32⟩
  | 7 => ⟨S4x256x16, .f32⟩
  | 8 => ⟨S4x256x16, .f32⟩
  | 9 => ⟨S_, .f32⟩
  | 10 => ⟨S4x256, .f32⟩
  | 11 => ⟨S_, .i32⟩
  | 12 => ⟨S1, .i32⟩
  | 13 => ⟨S4x512x256, .f32⟩
  | 14 => ⟨S4x256x16, .f32⟩
  | 15 => ⟨S4x256x16, .f32⟩
  | 16 => ⟨S4x1x256, .f32⟩
  | 17 => ⟨S4x256, .f32⟩
  | 18 => ⟨S4x256x1, .f32⟩
  | 19 => ⟨S4x1x16, .f32⟩
  | 20 => ⟨S4x16, .f32⟩
  | 21 => ⟨S4x1x16, .f32⟩
  | 22 => ⟨S4x256x16, .f32⟩
  | 23 => ⟨S4x256x16, .f32⟩
  | 24 => ⟨S4x256x16, .f32⟩
  | 25 => ⟨S4x256x16, .f32⟩
  | 26 => ⟨S4x1x16, .f32⟩
  | 27 => ⟨S4x16, .f32⟩
  | 28 => ⟨S4x1x16, .f32⟩
  | 29 => ⟨S4x256x16, .f32⟩
  | 30 => ⟨S4x256x16, .f32⟩
  | 31 => ⟨S_, .f32⟩
  | 32 => ⟨S4x256, .f32⟩
  | 33 => ⟨S_, .i32⟩
  | 34 => ⟨S1, .i32⟩
  | 35 => ⟨S4x512x256, .f32⟩
  | 36 => ⟨S4x256x16, .f32⟩
  | 37 => ⟨S4x256x16, .f32⟩
  | 38 => ⟨S4x1x256, .f32⟩
  | 39 => ⟨S4x256, .f32⟩
  | 40 => ⟨S4x256x1, .f32⟩
  | 41 => ⟨S4x1x16, .f32⟩
  | 42 => ⟨S4x16, .f32⟩
  | 43 => ⟨S4x1x16, .f32⟩
  | 44 => ⟨S4x256x16, .f32⟩
  | 45 => ⟨S4x256x16, .f32⟩
  | 46 => ⟨S4x256x16, .f32⟩
  | 47 => ⟨S4x256x16, .f32⟩
  | 48 => ⟨S4x1x16, .f32⟩
  | 49 => ⟨S4x16, .f32⟩
  | 50 => ⟨S4x1x16, .f32⟩
  | 51 => ⟨S4x256x16, .f32⟩
  | 52 => ⟨S4x256x16, .f32⟩
  | 53 => ⟨S_, .f32⟩
  | 54 => ⟨S4x256, .f32⟩
  | 55 => ⟨S_, .i32⟩
  | 56 => ⟨S1, .i32⟩
  | 57 => ⟨S4x512x256, .f32⟩
  | 58 => ⟨S4x256x16, .f32⟩
  | 59 => ⟨S4x256x16, .f32⟩
  | 60 => ⟨S4x1x256, .f32⟩
  | 61 => ⟨S4x256, .f32⟩
  | 62 => ⟨S4x256x1, .f32⟩
  | 63 => ⟨S4x1x16, .f32⟩
  | 64 => ⟨S4x16, .f32⟩
  | 65 => ⟨S4x1x16, .f32⟩
  | 66 => ⟨S4x256x16, .f32⟩
  | 67 => ⟨S4x256x16, .f32⟩
  | 68 => ⟨S4x256x16, .f32⟩
  | 69 => ⟨S4x256x16, .f32⟩
  | 70 => ⟨S4x1x16, .f32⟩
  | 71 => ⟨S4x16, .f32⟩
  | 72 => ⟨S4x1x16, .f32⟩
  | 73 => ⟨S4x256x16, .f32⟩
  | 74 => ⟨S4x256x16, .f32⟩
  | 75 => ⟨S_, .f32⟩
  | 76 => ⟨S4x256, .f32⟩
  | 77 => ⟨S_, .i32⟩
  | 78 => ⟨S1, .i32⟩
  | 79 => ⟨S4x512x256, .f32⟩
  | 80 => ⟨S4x256x16, .f32⟩
  | 81 => ⟨S4x256x16, .f32⟩
  | 82 => ⟨S4x1x256, .f32⟩
  | 83 => ⟨S4x256, .f32⟩
  | 84 => ⟨S4x256x1, .f32⟩
  | 85 => ⟨S4x1x16, .f32⟩
  | 86 => ⟨S4x16, .f32⟩
  | 87 => ⟨S4x1x16, .f32⟩
  | 88 => ⟨S4x256x16, .f32⟩
  | 89 => ⟨S4x256x16, .f32⟩
  | 90 => ⟨S4x256x16, .f32⟩
  | 91 => ⟨S4x256x16, .f32⟩
  | 92 => ⟨S4x1x16, .f32⟩
  | 93 => ⟨S4x16, .f32⟩
  | 94 => ⟨S4x1x16, .f32⟩
  | 95 => ⟨S4x256x16, .f32⟩
  | 96 => ⟨S4x256x16, .f32⟩
  | 97 => ⟨S_, .f32⟩
  | 98 => ⟨S4x256, .f32⟩
  | 99 => ⟨S_, .i32⟩
  | 100 => ⟨S1, .i32⟩
  | 101 => ⟨S4x512x256, .f32⟩
  | 102 => ⟨S4x256x16, .f32⟩
  | 103 => ⟨S4x256x16, .f32⟩
  | 104 => ⟨S4x1x256, .f32⟩
  | 105 => ⟨S4x256, .f32⟩
  | 106 => ⟨S4x256x1, .f32⟩
  | 107 => ⟨S4x1x16, .f32⟩
  | 108 => ⟨S4x16, .f32⟩
  | 109 => ⟨S4x1x16, .f32⟩
  | 110 => ⟨S4x256x16, .f32⟩
  | 111 => ⟨S4x256x16, .f32⟩
  | 112 => ⟨S4x256x16, .f32⟩
  | 113 => ⟨S4x256x16, .f32⟩
  | 114 => ⟨S4x1x16, .f32⟩
  | 115 => ⟨S4x16, .f32⟩
  | 116 => ⟨S4x1x16, .f32⟩
  | 117 => ⟨S4x256x16, .f32⟩
  | 118 => ⟨S4x256x16, .f32⟩
  | 119 => ⟨S_, .f32⟩
  | 120 => ⟨S4x256, .f32⟩
  | 121 => ⟨S_, .i32⟩
  | 122 => ⟨S1, .i32⟩
  | 123 => ⟨S4x512x256, .f32⟩
  | 124 => ⟨S4x256x16, .f32⟩
  | 125 => ⟨S4x256x16, .f32⟩
  | 126 => ⟨S4x1x256, .f32⟩
  | 127 => ⟨S4x256, .f32⟩
  | _ => ⟨S4x512x256, .f32⟩

abbrev hbmTy0_68 (i : Nat) : BufTy := match i % 128 with
  | 0 => ⟨S4x256x1, .f32⟩
  | 1 => ⟨S4x1x16, .f32⟩
  | 2 => ⟨S4x16, .f32⟩
  | 3 => ⟨S4x1x16, .f32⟩
  | 4 => ⟨S4x256x16, .f32⟩
  | 5 => ⟨S4x256x16, .f32⟩
  | 6 => ⟨S4x256x16, .f32⟩
  | 7 => ⟨S4x256x16, .f32⟩
  | 8 => ⟨S4x1x16, .f32⟩
  | 9 => ⟨S4x16, .f32⟩
  | 10 => ⟨S4x1x16, .f32⟩
  | 11 => ⟨S4x256x16, .f32⟩
  | 12 => ⟨S4x256x16, .f32⟩
  | 13 => ⟨S_, .f32⟩
  | 14 => ⟨S4x256, .f32⟩
  | 15 => ⟨S_, .i32⟩
  | 16 => ⟨S1, .i32⟩
  | 17 => ⟨S4x512x256, .f32⟩
  | 18 => ⟨S4x256x16, .f32⟩
  | 19 => ⟨S4x256x16, .f32⟩
  | 20 => ⟨S4x1x256, .f32⟩
  | 21 => ⟨S4x256, .f32⟩
  | 22 => ⟨S4x256x1, .f32⟩
  | 23 => ⟨S4x1x16, .f32⟩
  | 24 => ⟨S4x16, .f32⟩
  | 25 => ⟨S4x1x16, .f32⟩
  | 26 => ⟨S4x256x16, .f32⟩
  | 27 => ⟨S4x256x16, .f32⟩
  | 28 => ⟨S4x256x16, .f32⟩
  | 29 => ⟨S4x256x16, .f32⟩
  | 30 => ⟨S4x1x16, .f32⟩
  | 31 => ⟨S4x16, .f32⟩
  | 32 => ⟨S4x1x16, .f32⟩
  | 33 => ⟨S4x256x16, .f32⟩
  | 34 => ⟨S4x256x16, .f32⟩
  | 35 => ⟨S_, .f32⟩
  | 36 => ⟨S4x256, .f32⟩
  | 37 => ⟨S_, .i32⟩
  | 38 => ⟨S1, .i32⟩
  | 39 => ⟨S4x512x256, .f32⟩
  | 40 => ⟨S4x256x16, .f32⟩
  | 41 => ⟨S4x256x16, .f32⟩
  | 42 => ⟨S4x1x256, .f32⟩
  | 43 => ⟨S4x256, .f32⟩
  | 44 => ⟨S4x256x1, .f32⟩
  | 45 => ⟨S4x1x16, .f32⟩
  | 46 => ⟨S4x16, .f32⟩
  | 47 => ⟨S4x1x16, .f32⟩
  | 48 => ⟨S4x256x16, .f32⟩
  | 49 => ⟨S4x256x16, .f32⟩
  | 50 => ⟨S4x256x16, .f32⟩
  | 51 => ⟨S4x256x16, .f32⟩
  | 52 => ⟨S4x1x16, .f32⟩
  | 53 => ⟨S4x16, .f32⟩
  | 54 => ⟨S4x1x16, .f32⟩
  | 55 => ⟨S4x256x16, .f32⟩
  | 56 => ⟨S4x256x16, .f32⟩
  | 57 => ⟨S_, .f32⟩
  | 58 => ⟨S4x256, .f32⟩
  | 59 => ⟨S_, .i32⟩
  | 60 => ⟨S1, .i32⟩
  | 61 => ⟨S4x512x256, .f32⟩
  | 62 => ⟨S4x256x16, .f32⟩
  | 63 => ⟨S4x256x16, .f32⟩
  | 64 => ⟨S4x1x256, .f32⟩
  | 65 => ⟨S4x256, .f32⟩
  | 66 => ⟨S4x256x1, .f32⟩
  | 67 => ⟨S4x1x16, .f32⟩
  | 68 => ⟨S4x16, .f32⟩
  | 69 => ⟨S4x1x16, .f32⟩
  | 70 => ⟨S4x256x16, .f32⟩
  | 71 => ⟨S4x256x16, .f32⟩
  | 72 => ⟨S4x256x16, .f32⟩
  | 73 => ⟨S4x256x16, .f32⟩
  | 74 => ⟨S4x1x16, .f32⟩
  | 75 => ⟨S4x16, .f32⟩
  | 76 => ⟨S4x1x16, .f32⟩
  | 77 => ⟨S4x256x16, .f32⟩
  | 78 => ⟨S4x256x16, .f32⟩
  | 79 => ⟨S_, .f32⟩
  | 80 => ⟨S4x256, .f32⟩
  | 81 => ⟨S_, .i32⟩
  | 82 => ⟨S1, .i32⟩
  | 83 => ⟨S4x512x256, .f32⟩
  | 84 => ⟨S4x256x16, .f32⟩
  | 85 => ⟨S4x256x16, .f32⟩
  | 86 => ⟨S4x1x256, .f32⟩
  | 87 => ⟨S4x256, .f32⟩
  | 88 => ⟨S4x256x1, .f32⟩
  | 89 => ⟨S4x1x16, .f32⟩
  | 90 => ⟨S4x16, .f32⟩
  | 91 => ⟨S4x1x16, .f32⟩
  | 92 => ⟨S4x256x16, .f32⟩
  | 93 => ⟨S4x256x16, .f32⟩
  | 94 => ⟨S4x256x16, .f32⟩
  | 95 => ⟨S4x256x16, .f32⟩
  | 96 => ⟨S4x1x16, .f32⟩
  | 97 => ⟨S4x16, .f32⟩
  | 98 => ⟨S4x1x16, .f32⟩
  | 99 => ⟨S4x256x16, .f32⟩
  | 100 => ⟨S4x256x16, .f32⟩
  | 101 => ⟨S_, .f32⟩
  | 102 => ⟨S4x256, .f32⟩
  | 103 => ⟨S_, .i32⟩
  | 104 => ⟨S1, .i32⟩
  | 105 => ⟨S4x512x256, .f32⟩
  | 106 => ⟨S4x256x16, .f32⟩
  | 107 => ⟨S4x256x16, .f32⟩
  | 108 => ⟨S4x1x256, .f32⟩
  | 109 => ⟨S4x256, .f32⟩
  | 110 => ⟨S4x256x1, .f32⟩
  | 111 => ⟨S4x1x16, .f32⟩
  | 112 => ⟨S4x16, .f32⟩
  | 113 => ⟨S4x1x16, .f32⟩
  | 114 => ⟨S4x256x16, .f32⟩
  | 115 => ⟨S4x256x16, .f32⟩
  | 116 => ⟨S4x256x16, .f32⟩
  | 117 => ⟨S4x256x16, .f32⟩
  | 118 => ⟨S4x1x16, .f32⟩
  | 119 => ⟨S4x16, .f32⟩
  | 120 => ⟨S4x1x16, .f32⟩
  | 121 => ⟨S4x256x16, .f32⟩
  | 122 => ⟨S4x256x16, .f32⟩
  | 123 => ⟨S_, .f32⟩
  | 124 => ⟨S4x256, .f32⟩
  | 125 => ⟨S_, .i32⟩
  | 126 => ⟨S1, .i32⟩
  | 127 => ⟨S4x512x256, .f32⟩
  | _ => ⟨S4x512x256, .f32⟩

abbrev hbmTy0_69 (i : Nat) : BufTy := match i % 128 with
  | 0 => ⟨S4x256x16, .f32⟩
  | 1 => ⟨S4x256x16, .f32⟩
  | 2 => ⟨S4x1x256, .f32⟩
  | 3 => ⟨S4x256, .f32⟩
  | 4 => ⟨S4x256x1, .f32⟩
  | 5 => ⟨S4x1x16, .f32⟩
  | 6 => ⟨S4x16, .f32⟩
  | 7 => ⟨S4x1x16, .f32⟩
  | 8 => ⟨S4x256x16, .f32⟩
  | 9 => ⟨S4x256x16, .f32⟩
  | 10 => ⟨S4x256x16, .f32⟩
  | 11 => ⟨S4x256x16, .f32⟩
  | 12 => ⟨S4x1x16, .f32⟩
  | 13 => ⟨S4x16, .f32⟩
  | 14 => ⟨S4x1x16, .f32⟩
  | 15 => ⟨S4x256x16, .f32⟩
  | 16 => ⟨S4x256x16, .f32⟩
  | 17 => ⟨S_, .f32⟩
  | 18 => ⟨S4x256, .f32⟩
  | 19 => ⟨S_, .i32⟩
  | 20 => ⟨S1, .i32⟩
  | 21 => ⟨S4x512x256, .f32⟩
  | 22 => ⟨S4x256x16, .f32⟩
  | 23 => ⟨S4x256x16, .f32⟩
  | 24 => ⟨S4x1x256, .f32⟩
  | 25 => ⟨S4x256, .f32⟩
  | 26 => ⟨S4x256x1, .f32⟩
  | 27 => ⟨S4x1x16, .f32⟩
  | 28 => ⟨S4x16, .f32⟩
  | 29 => ⟨S4x1x16, .f32⟩
  | 30 => ⟨S4x256x16, .f32⟩
  | 31 => ⟨S4x256x16, .f32⟩
  | 32 => ⟨S4x256x16, .f32⟩
  | 33 => ⟨S4x256x16, .f32⟩
  | 34 => ⟨S4x1x16, .f32⟩
  | 35 => ⟨S4x16, .f32⟩
  | 36 => ⟨S4x1x16, .f32⟩
  | 37 => ⟨S4x256x16, .f32⟩
  | 38 => ⟨S4x256x16, .f32⟩
  | 39 => ⟨S_, .f32⟩
  | 40 => ⟨S4x256, .f32⟩
  | 41 => ⟨S_, .i32⟩
  | 42 => ⟨S1, .i32⟩
  | 43 => ⟨S4x512x256, .f32⟩
  | 44 => ⟨S4x256x16, .f32⟩
  | 45 => ⟨S4x256x16, .f32⟩
  | 46 => ⟨S4x1x256, .f32⟩
  | 47 => ⟨S4x256, .f32⟩
  | 48 => ⟨S4x256x1, .f32⟩
  | 49 => ⟨S4x1x16, .f32⟩
  | 50 => ⟨S4x16, .f32⟩
  | 51 => ⟨S4x1x16, .f32⟩
  | 52 => ⟨S4x256x16, .f32⟩
  | 53 => ⟨S4x256x16, .f32⟩
  | 54 => ⟨S4x256x16, .f32⟩
  | 55 => ⟨S4x256x16, .f32⟩
  | 56 => ⟨S4x1x16, .f32⟩
  | 57 => ⟨S4x16, .f32⟩
  | 58 => ⟨S4x1x16, .f32⟩
  | 59 => ⟨S4x256x16, .f32⟩
  | 60 => ⟨S4x256x16, .f32⟩
  | 61 => ⟨S_, .f32⟩
  | 62 => ⟨S4x256, .f32⟩
  | 63 => ⟨S_, .i32⟩
  | 64 => ⟨S1, .i32⟩
  | 65 => ⟨S4x512x256, .f32⟩
  | 66 => ⟨S4x256x16, .f32⟩
  | 67 => ⟨S4x256x16, .f32⟩
  | 68 => ⟨S4x1x256, .f32⟩
  | 69 => ⟨S4x256, .f32⟩
  | 70 => ⟨S4x256x1, .f32⟩
  | 71 => ⟨S4x1x16, .f32⟩
  | 72 => ⟨S4x16, .f32⟩
  | 73 => ⟨S4x1x16, .f32⟩
  | 74 => ⟨S4x256x16, .f32⟩
  | 75 => ⟨S4x256x16, .f32⟩
  | 76 => ⟨S4x256x16, .f32⟩
  | 77 => ⟨S4x256x16, .f32⟩
  | 78 => ⟨S4x1x16, .f32⟩
  | 79 => ⟨S4x16, .f32⟩
  | 80 => ⟨S4x1x16, .f32⟩
  | 81 => ⟨S4x256x16, .f32⟩
  | 82 => ⟨S4x256x16, .f32⟩
  | 83 => ⟨S_, .f32⟩
  | 84 => ⟨S4x256, .f32⟩
  | 85 => ⟨S_, .i32⟩
  | 86 => ⟨S1, .i32⟩
  | 87 => ⟨S4x512x256, .f32⟩
  | 88 => ⟨S4x256x16, .f32⟩
  | 89 => ⟨S4x256x16, .f32⟩
  | 90 => ⟨S4x1x256, .f32⟩
  | 91 => ⟨S4x256, .f32⟩
  | 92 => ⟨S4x256x1, .f32⟩
  | 93 => ⟨S4x1x16, .f32⟩
  | 94 => ⟨S4x16, .f32⟩
  | 95 => ⟨S4x1x16, .f32⟩
  | 96 => ⟨S4x256x16, .f32⟩
  | 97 => ⟨S4x256x16, .f32⟩
  | 98 => ⟨S4x256x16, .f32⟩
  | 99 => ⟨S4x256x16, .f32⟩
  | 100 => ⟨S4x1x16, .f32⟩
  | 101 => ⟨S4x16, .f32⟩
  | 102 => ⟨S4x1x16, .f32⟩
  | 103 => ⟨S4x256x16, .f32⟩
  | 104 => ⟨S4x256x16, .f32⟩
  | 105 => ⟨S_, .f32⟩
  | 106 => ⟨S4x256, .f32⟩
  | 107 => ⟨S_, .i32⟩
  | 108 => ⟨S1, .i32⟩
  | 109 => ⟨S4x512x256, .f32⟩
  | 110 => ⟨S4x256x16, .f32⟩
  | 111 => ⟨S4x256x16, .f32⟩
  | 112 => ⟨S4x1x256, .f32⟩
  | 113 => ⟨S4x256, .f32⟩
  | 114 => ⟨S4x256x1, .f32⟩
  | 115 => ⟨S4x1x16, .f32⟩
  | 116 => ⟨S4x16, .f32⟩
  | 117 => ⟨S4x1x16, .f32⟩
  | 118 => ⟨S4x256x16, .f32⟩
  | 119 => ⟨S4x256x16, .f32⟩
  | 120 => ⟨S4x256x16, .f32⟩
  | 121 => ⟨S4x256x16, .f32⟩
  | 122 => ⟨S4x1x16, .f32⟩
  | 123 => ⟨S4x16, .f32⟩
  | 124 => ⟨S4x1x16, .f32⟩
  | 125 => ⟨S4x256x16, .f32⟩
  | 126 => ⟨S4x256x16, .f32⟩
  | 127 => ⟨S_, .f32⟩
  | _ => ⟨S4x512x256, .f32⟩

abbrev hbmTy0_70 (i : Nat) : BufTy := match i % 128 with
  | 0 => ⟨S4x256, .f32⟩
  | 1 => ⟨S_, .i32⟩
  | 2 => ⟨S1, .i32⟩
  | 3 => ⟨S4x512x256, .f32⟩
  | 4 => ⟨S4x256x16, .f32⟩
  | 5 => ⟨S4x256x16, .f32⟩
  | 6 => ⟨S4x1x256, .f32⟩
  | 7 => ⟨S4x256, .f32⟩
  | 8 => ⟨S4x256x1, .f32⟩
  | 9 => ⟨S4x1x16, .f32⟩
  | 10 => ⟨S4x16, .f32⟩
  | 11 => ⟨S4x1x16, .f32⟩
  | 12 => ⟨S4x256x16, .f32⟩
  | 13 => ⟨S4x256x16, .f32⟩
  | 14 => ⟨S4x256x16, .f32⟩
  | 15 => ⟨S4x256x16, .f32⟩
  | 16 => ⟨S4x1x16, .f32⟩
  | 17 => ⟨S4x16, .f32⟩
  | 18 => ⟨S4x1x16, .f32⟩
  | 19 => ⟨S4x256x16, .f32⟩
  | 20 => ⟨S4x256x16, .f32⟩
  | 21 => ⟨S_, .f32⟩
  | 22 => ⟨S4x256, .f32⟩
  | 23 => ⟨S_, .i32⟩
  | 24 => ⟨S1, .i32⟩
  | 25 => ⟨S4x512x256, .f32⟩
  | 26 => ⟨S4x256x16, .f32⟩
  | 27 => ⟨S4x256x16, .f32⟩
  | 28 => ⟨S4x1x256, .f32⟩
  | 29 => ⟨S4x256, .f32⟩
  | 30 => ⟨S4x256x1, .f32⟩
  | 31 => ⟨S4x1x16, .f32⟩
  | 32 => ⟨S4x16, .f32⟩
  | 33 => ⟨S4x1x16, .f32⟩
  | 34 => ⟨S4x256x16, .f32⟩
  | 35 => ⟨S4x256x16, .f32⟩
  | 36 => ⟨S4x256x16, .f32⟩
  | 37 => ⟨S4x256x16, .f32⟩
  | 38 => ⟨S4x1x16, .f32⟩
  | 39 => ⟨S4x16, .f32⟩
  | 40 => ⟨S4x1x16, .f32⟩
  | 41 => ⟨S4x256x16, .f32⟩
  | 42 => ⟨S4x256x16, .f32⟩
  | 43 => ⟨S_, .f32⟩
  | 44 => ⟨S4x256, .f32⟩
  | 45 => ⟨S_, .i32⟩
  | 46 => ⟨S1, .i32⟩
  | 47 => ⟨S4x512x256, .f32⟩
  | 48 => ⟨S4x256x16, .f32⟩
  | 49 => ⟨S4x256x16, .f32⟩
  | 50 => ⟨S4x1x256, .f32⟩
  | 51 => ⟨S4x256, .f32⟩
  | 52 => ⟨S4x256x1, .f32⟩
  | 53 => ⟨S4x1x16, .f32⟩
  | 54 => ⟨S4x16, .f32⟩
  | 55 => ⟨S4x1x16, .f32⟩
  | 56 => ⟨S4x256x16, .f32⟩
  | 57 => ⟨S4x256x16, .f32⟩
  | 58 => ⟨S4x256x16, .f32⟩
  | 59 => ⟨S4x256x16, .f32⟩
  | 60 => ⟨S4x1x16, .f32⟩
  | 61 => ⟨S4x16, .f32⟩
  | 62 => ⟨S4x1x16, .f32⟩
  | 63 => ⟨S4x256x16, .f32⟩
  | 64 => ⟨S4x256x16, .f32⟩
  | 65 => ⟨S_, .f32⟩
  | 66 => ⟨S4x256, .f32⟩
  | 67 => ⟨S_, .i32⟩
  | 68 => ⟨S1, .i32⟩
  | 69 => ⟨S4x512x256, .f32⟩
  | 70 => ⟨S4x256x16, .f32⟩
  | 71 => ⟨S4x256x16, .f32⟩
  | 72 => ⟨S4x1x256, .f32⟩
  | 73 => ⟨S4x256, .f32⟩
  | 74 => ⟨S4x256x1, .f32⟩
  | 75 => ⟨S4x1x16, .f32⟩
  | 76 => ⟨S4x16, .f32⟩
  | 77 => ⟨S4x1x16, .f32⟩
  | 78 => ⟨S4x256x16, .f32⟩
  | 79 => ⟨S4x256x16, .f32⟩
  | 80 => ⟨S4x256x16, .f32⟩
  | 81 => ⟨S4x256x16, .f32⟩
  | 82 => ⟨S4x1x16, .f32⟩
  | 83 => ⟨S4x16, .f32⟩
  | 84 => ⟨S4x1x16, .f32⟩
  | 85 => ⟨S4x256x16, .f32⟩
  | 86 => ⟨S4x256x16, .f32⟩
  | 87 => ⟨S_, .f32⟩
  | 88 => ⟨S4x256, .f32⟩
  | 89 => ⟨S_, .i32⟩
  | 90 => ⟨S1, .i32⟩
  | 91 => ⟨S4x512x256, .f32⟩
  | 92 => ⟨S4x256x16, .f32⟩
  | 93 => ⟨S4x256x16, .f32⟩
  | 94 => ⟨S4x1x256, .f32⟩
  | 95 => ⟨S4x256, .f32⟩
  | 96 => ⟨S4x256x1, .f32⟩
  | 97 => ⟨S4x1x16, .f32⟩
  | 98 => ⟨S4x16, .f32⟩
  | 99 => ⟨S4x1x16, .f32⟩
  | 100 => ⟨S4x256x16, .f32⟩
  | 101 => ⟨S4x256x16, .f32⟩
  | 102 => ⟨S4x256x16, .f32⟩
  | 103 => ⟨S4x256x16, .f32⟩
  | 104 => ⟨S4x1x16, .f32⟩
  | 105 => ⟨S4x16, .f32⟩
  | 106 => ⟨S4x1x16, .f32⟩
  | 107 => ⟨S4x256x16, .f32⟩
  | 108 => ⟨S4x256x16, .f32⟩
  | 109 => ⟨S_, .f32⟩
  | 110 => ⟨S4x256, .f32⟩
  | 111 => ⟨S_, .i32⟩
  | 112 => ⟨S1, .i32⟩
  | 113 => ⟨S4x512x256, .f32⟩
  | 114 => ⟨S4x256x16, .f32⟩
  | 115 => ⟨S4x256x16, .f32⟩
  | 116 => ⟨S4x1x256, .f32⟩
  | 117 => ⟨S4x256, .f32⟩
  | 118 => ⟨S4x256x1, .f32⟩
  | 119 => ⟨S4x1x16, .f32⟩
  | 120 => ⟨S4x16, .f32⟩
  | 121 => ⟨S4x1x16, .f32⟩
  | 122 => ⟨S4x256x16, .f32⟩
  | 123 => ⟨S4x256x16, .f32⟩
  | 124 => ⟨S4x256x16, .f32⟩
  | 125 => ⟨S4x256x16, .f32⟩
  | 126 => ⟨S4x1x16, .f32⟩
  | 127 => ⟨S4x16, .f32⟩
  | _ => ⟨S4x512x256, .f32⟩

abbrev hbmTy0_71 (i : Nat) : BufTy := match i % 128 with
  | 0 => ⟨S4x1x16, .f32⟩
  | 1 => ⟨S4x256x16, .f32⟩
  | 2 => ⟨S4x256x16, .f32⟩
  | 3 => ⟨S_, .f32⟩
  | 4 => ⟨S4x256, .f32⟩
  | 5 => ⟨S_, .i32⟩
  | 6 => ⟨S1, .i32⟩
  | 7 => ⟨S4x512x256, .f32⟩
  | 8 => ⟨S4x256x16, .f32⟩
  | 9 => ⟨S4x256x16, .f32⟩
  | 10 => ⟨S4x1x256, .f32⟩
  | 11 => ⟨S4x256, .f32⟩
  | 12 => ⟨S4x256x1, .f32⟩
  | 13 => ⟨S4x1x16, .f32⟩
  | 14 => ⟨S4x16, .f32⟩
  | 15 => ⟨S4x1x16, .f32⟩
  | 16 => ⟨S4x256x16, .f32⟩
  | 17 => ⟨S4x256x16, .f32⟩
  | 18 => ⟨S4x256x16, .f32⟩
  | 19 => ⟨S4x256x16, .f32⟩
  | 20 => ⟨S4x1x16, .f32⟩
  | 21 => ⟨S4x16, .f32⟩
  | 22 => ⟨S4x1x16, .f32⟩
  | 23 => ⟨S4x256x16, .f32⟩
  | 24 => ⟨S4x256x16, .f32⟩
  | 25 => ⟨S_, .f32⟩
  | 26 => ⟨S4x256, .f32⟩
  | 27 => ⟨S_, .i32⟩
  | 28 => ⟨S1, .i32⟩
  | 29 => ⟨S4x512x256, .f32⟩
  | 30 => ⟨S4x256x16, .f32⟩
  | 31 => ⟨S4x256x16, .f32⟩
  | 32 => ⟨S4x1x256, .f32⟩
  | 33 => ⟨S4x256, .f32⟩
  | 34 => ⟨S4x256x1, .f32⟩
  | 35 => ⟨S4x1x16, .f32⟩
  | 36 => ⟨S4x16, .f32⟩
  | 37 => ⟨S4x1x16, .f32⟩
  | 38 => ⟨S4x256x16, .f32⟩
  | 39 => ⟨S4x256x16, .f32⟩
  | 40 => ⟨S4x256x16, .f32⟩
  | 41 => ⟨S4x256x16, .f32⟩
  | 42 => ⟨S4x1x16, .f32⟩
  | 43 => ⟨S4x16, .f32⟩
  | 44 => ⟨S4x1x16, .f32⟩
  | 45 => ⟨S4x256x16, .f32⟩
  | 46 => ⟨S4x256x16, .f32⟩
  | 47 => ⟨S_, .f32⟩
  | 48 => ⟨S4x256, .f32⟩
  | 49 => ⟨S_, .i32⟩
  | 50 => ⟨S1, .i32⟩
  | 51 => ⟨S4x512x256, .f32⟩
  | 52 => ⟨S4x256x16, .f32⟩
  | 53 => ⟨S4x256x16, .f32⟩
  | 54 => ⟨S4x1x256, .f32⟩
  | 55 => ⟨S4x256, .f32⟩
  | 56 => ⟨S4x256x1, .f32⟩
  | 57 => ⟨S4x1x16, .f32⟩
  | 58 => ⟨S4x16, .f32⟩
  | 59 => ⟨S4x1x16, .f32⟩
  | 60 => ⟨S4x256x16, .f32⟩
  | 61 => ⟨S4x256x16, .f32⟩
  | 62 => ⟨S4x256x16, .f32⟩
  | 63 => ⟨S4x256x16, .f32⟩
  | 64 => ⟨S4x1x16, .f32⟩
  | 65 => ⟨S4x16, .f32⟩
  | 66 => ⟨S4x1x16, .f32⟩
  | 67 => ⟨S4x256x16, .f32⟩
  | 68 => ⟨S4x256x16, .f32⟩
  | 69 => ⟨S_, .f32⟩
  | 70 => ⟨S4x256, .f32⟩
  | 71 => ⟨S_, .i32⟩
  | 72 => ⟨S1, .i32⟩
  | 73 => ⟨S4x512x256, .f32⟩
  | 74 => ⟨S4x256x16, .f32⟩
  | 75 => ⟨S4x256x16, .f32⟩
  | 76 => ⟨S4x1x256, .f32⟩
  | 77 => ⟨S4x256, .f32⟩
  | 78 => ⟨S4x256x1, .f32⟩
  | 79 => ⟨S4x1x16, .f32⟩
  | 80 => ⟨S4x16, .f32⟩
  | 81 => ⟨S4x1x16, .f32⟩
  | 82 => ⟨S4x256x16, .f32⟩
  | 83 => ⟨S4x256x16, .f32⟩
  | 84 => ⟨S4x256x16, .f32⟩
  | 85 => ⟨S4x256x16, .f32⟩
  | 86 => ⟨S4x1x16, .f32⟩
  | 87 => ⟨S4x16, .f32⟩
  | 88 => ⟨S4x1x16, .f32⟩
  | 89 => ⟨S4x256x16, .f32⟩
  | 90 => ⟨S4x256x16, .f32⟩
  | 91 => ⟨S_, .f32⟩
  | 92 => ⟨S4x256, .f32⟩
  | 93 => ⟨S_, .i32⟩
  | 94 => ⟨S1, .i32⟩
  | 95 => ⟨S4x512x256, .f32⟩
  | 96 => ⟨S4x256x16, .f32⟩
  | 97 => ⟨S4x256x16, .f32⟩
  | 98 => ⟨S4x1x256, .f32⟩
  | 99 => ⟨S4x256, .f32⟩
  | 100 => ⟨S4x256x1, .f32⟩
  | 101 => ⟨S4x1x16, .f32⟩
  | 102 => ⟨S4x16, .f32⟩
  | 103 => ⟨S4x1x16, .f32⟩
  | 104 => ⟨S4x256x16, .f32⟩
  | 105 => ⟨S4x256x16, .f32⟩
  | 106 => ⟨S4x256x16, .f32⟩
  | 107 => ⟨S4x256x16, .f32⟩
  | 108 => ⟨S4x1x16, .f32⟩
  | 109 => ⟨S4x16, .f32⟩
  | 110 => ⟨S4x1x16, .f32⟩
  | 111 => ⟨S4x256x16, .f32⟩
  | 112 => ⟨S4x256x16, .f32⟩
  | 113 => ⟨S_, .f32⟩
  | 114 => ⟨S4x256, .f32⟩
  | 115 => ⟨S_, .i32⟩
  | 116 => ⟨S1, .i32⟩
  | 117 => ⟨S4x512x256, .f32⟩
  | 118 => ⟨S4x256x16, .f32⟩
  | 119 => ⟨S4x256x16, .f32⟩
  | 120 => ⟨S4x1x256, .f32⟩
  | 121 => ⟨S4x256, .f32⟩
  | 122 => ⟨S4x256x1, .f32⟩
  | 123 => ⟨S4x1x16, .f32⟩
  | 124 => ⟨S4x16, .f32⟩
  | 125 => ⟨S4x1x16, .f32⟩
  | 126 => ⟨S4x256x16, .f32⟩
  | 127 => ⟨S4x256x16, .f32⟩
  | _ => ⟨S4x512x256, .f32⟩

abbrev hbmTy0_72 (i : Nat) : BufTy := match i % 128 with
  | 0 => ⟨S4x256x16, .f32⟩
  | 1 => ⟨S4x256x16, .f32⟩
  | 2 => ⟨S4x1x16, .f32⟩
  | 3 => ⟨S4x16, .f32⟩
  | 4 => ⟨S4x1x16, .f32⟩
  | 5 => ⟨S4x256x16, .f32⟩
  | 6 => ⟨S4x256x16, .f32⟩
  | 7 => ⟨S_, .f32⟩
  | 8 => ⟨S4x256, .f32⟩
  | 9 => ⟨S_, .i32⟩
  | 10 => ⟨S1, .i32⟩
  | 11 => ⟨S4x512x256, .f32⟩
  | 12 => ⟨S4x256x16, .f32⟩
  | 13 => ⟨S4x256x16, .f32⟩
  | 14 => ⟨S4x1x256, .f32⟩
  | 15 => ⟨S4x256, .f32⟩
  | 16 => ⟨S4x256x1, .f32⟩
  | 17 => ⟨S4x1x16, .f32⟩
  | 18 => ⟨S4x16, .f32⟩
  | 19 => ⟨S4x1x16, .f32⟩
  | 20 => ⟨S4x256x16, .f32⟩
  | 21 => ⟨S4x256x16, .f32⟩
  | 22 => ⟨S4x256x16, .f32⟩
  | 23 => ⟨S4x256x16, .f32⟩
  | 24 => ⟨S4x1x16, .f32⟩
  | 25 => ⟨S4x16, .f32⟩
  | 26 => ⟨S4x1x16, .f32⟩
  | 27 => ⟨S4x256x16, .f32⟩
  | 28 => ⟨S4x256x16, .f32⟩
  | 29 => ⟨S_, .f32⟩
  | 30 => ⟨S4x256, .f32⟩
  | 31 => ⟨S_, .i32⟩
  | 32 => ⟨S1, .i32⟩
  | 33 => ⟨S4x512x256, .f32⟩
  | 34 => ⟨S4x256x16, .f32⟩
  | 35 => ⟨S4x256x16, .f32⟩
  | 36 => ⟨S4x1x256, .f32⟩
  | 37 => ⟨S4x256, .f32⟩
  | 38 => ⟨S4x256x1, .f32⟩
  | 39 => ⟨S4x1x16, .f32⟩
  | 40 => ⟨S4x16, .f32⟩
  | 41 => ⟨S4x1x16, .f32⟩
  | 42 => ⟨S4x256x16, .f32⟩
  | 43 => ⟨S4x256x16, .f32⟩
  | 44 => ⟨S4x256x16, .f32⟩
  | 45 => ⟨S4x256x16, .f32⟩
  | 46 => ⟨S4x1x16, .f32⟩
  | 47 => ⟨S4x16, .f32⟩
  | 48 => ⟨S4x1x16, .f32⟩
  | 49 => ⟨S4x256x16, .f32⟩
  | 50 => ⟨S4x256x16, .f32⟩
  | 51 => ⟨S_, .f32⟩
  | 52 => ⟨S4x256, .f32⟩
  | 53 => ⟨S_, .i32⟩
  | 54 => ⟨S1, .i32⟩
  | 55 => ⟨S4x512x256, .f32⟩
  | 56 => ⟨S4x256x16, .f32⟩
  | 57 => ⟨S4x256x16, .f32⟩
  | 58 => ⟨S4x1x256, .f32⟩
  | 59 => ⟨S4x256, .f32⟩
  | 60 => ⟨S4x256x1, .f32⟩
  | 61 => ⟨S4x1x16, .f32⟩
  | 62 => ⟨S4x16, .f32⟩
  | 63 => ⟨S4x1x16, .f32⟩
  | 64 => ⟨S4x256x16, .f32⟩
  | 65 => ⟨S4x256x16, .f32⟩
  | 66 => ⟨S4x256x16, .f32⟩
  | 67 => ⟨S4x256x16, .f32⟩
  | 68 => ⟨S4x1x16, .f32⟩
  | 69 => ⟨S4x16, .f32⟩
  | 70 => ⟨S4x1x16, .f32⟩
  | 71 => ⟨S4x256x16, .f32⟩
  | 72 => ⟨S4x256x16, .f32⟩
  | 73 => ⟨S_, .f32⟩
  | 74 => ⟨S4x256, .f32⟩
  | 75 => ⟨S_, .i32⟩
  | 76 => ⟨S1, .i32⟩
  | 77 => ⟨S4x512x256, .f32⟩
  | 78 => ⟨S4x256x16, .f32⟩
  | 79 => ⟨S4x256x16, .f32⟩
  | 80 => ⟨S4x1x256, .f32⟩
  | 81 => ⟨S4x256, .f32⟩
  | 82 => ⟨S4x256x1, .f32⟩
  | 83 => ⟨S4x1x16, .f32⟩
  | 84 => ⟨S4x16, .f32⟩
  | 85 => ⟨S4x1x16, .f32⟩
  | 86 => ⟨S4x256x16, .f32⟩
  | 87 => ⟨S4x256x16, .f32⟩
  | 88 => ⟨S4x256x16, .f32⟩
  | 89 => ⟨S4x256x16, .f32⟩
  | 90 => ⟨S4x1x16, .f32⟩
  | 91 => ⟨S4x16, .f32⟩
  | 92 => ⟨S4x1x16, .f32⟩
  | 93 => ⟨S4x256x16, .f32⟩
  | 94 => ⟨S4x256x16, .f32⟩
  | 95 => ⟨S_, .f32⟩
  | 96 => ⟨S4x256, .f32⟩
  | 97 => ⟨S_, .i32⟩
  | 98 => ⟨S1, .i32⟩
  | 99 => ⟨S4x512x256, .f32⟩
  | 100 => ⟨S4x256x16, .f32⟩
  | 101 => ⟨S4x256x16, .f32⟩
  | 102 => ⟨S4x1x256, .f32⟩
  | 103 => ⟨S4x256, .f32⟩
  | 104 => ⟨S4x256x1, .f32⟩
  | 105 => ⟨S4x1x16, .f32⟩
  | 106 => ⟨S4x16, .f32⟩
  | 107 => ⟨S4x1x16, .f32⟩
  | 108 => ⟨S4x256x16, .f32⟩
  | 109 => ⟨S4x256x16, .f32⟩
  | 110 => ⟨S4x256x16, .f32⟩
  | 111 => ⟨S4x256x16, .f32⟩
  | 112 => ⟨S4x1x16, .f32⟩
  | 113 => ⟨S4x16, .f32⟩
  | 114 => ⟨S4x1x16, .f32⟩
  | 115 => ⟨S4x256x16, .f32⟩
  | 116 => ⟨S4x256x16, .f32⟩
  | 117 => ⟨S_, .f32⟩
  | 118 => ⟨S4x256, .f32⟩
  | 119 => ⟨S_, .i32⟩
  | 120 => ⟨S1, .i32⟩
  | 121 => ⟨S4x512x256, .f32⟩
  | 122 => ⟨S4x256x16, .f32⟩
  | 123 => ⟨S4x256x16, .f32⟩
  | 124 => ⟨S4x1x256, .f32⟩
  | 125 => ⟨S4x256, .f32⟩
  | 126 => ⟨S4x256x1, .f32⟩
  | 127 => ⟨S4x1x16, .f32⟩
  | _ => ⟨S4x512x256, .f32⟩

abbrev hbmTy0_73 (i : Nat) : BufTy := match i % 128 with
  | 0 => ⟨S4x16, .f32⟩
  | 1 => ⟨S4x1x16, .f32⟩
  | 2 => ⟨S4x256x16, .f32⟩
  | 3 => ⟨S4x256x16, .f32⟩
  | 4 => ⟨S4x256x16, .f32⟩
  | 5 => ⟨S4x256x16, .f32⟩
  | 6 => ⟨S4x1x16, .f32⟩
  | 7 => ⟨S4x16, .f32⟩
  | 8 => ⟨S4x1x16, .f32⟩
  | 9 => ⟨S4x256x16, .f32⟩
  | 10 => ⟨S4x256x16, .f32⟩
  | 11 => ⟨S_, .f32⟩
  | 12 => ⟨S4x256, .f32⟩
  | 13 => ⟨S_, .i32⟩
  | 14 => ⟨S1, .i32⟩
  | 15 => ⟨S4x512x256, .f32⟩
  | 16 => ⟨S4x256x16, .f32⟩
  | 17 => ⟨S4x256x16, .f32⟩
  | 18 => ⟨S4x1x256, .f32⟩
  | 19 => ⟨S4x256, .f32⟩
  | 20 => ⟨S4x256x1, .f32⟩
  | 21 => ⟨S4x1x16, .f32⟩
  | 22 => ⟨S4x16, .f32⟩
  | 23 => ⟨S4x1x16, .f32⟩
  | 24 => ⟨S4x256x16, .f32⟩
  | 25 => ⟨S4x256x16, .f32⟩
  | 26 => ⟨S4x256x16, .f32⟩
  | 27 => ⟨S4x256x16, .f32⟩
  | 28 => ⟨S4x1x16, .f32⟩
  | 29 => ⟨S4x16, .f32⟩
  | 30 => ⟨S4x1x16, .f32⟩
  | 31 => ⟨S4x256x16, .f32⟩
  | 32 => ⟨S4x256x16, .f32⟩
  | 33 => ⟨S_, .f32⟩
  | 34 => ⟨S4x256, .f32⟩
  | 35 => ⟨S_, .i32⟩
  | 36 => ⟨S1, .i32⟩
  | 37 => ⟨S4x512x256, .f32⟩
  | 38 => ⟨S4x256x16, .f32⟩
  | 39 => ⟨S4x256x16, .f32⟩
  | 40 => ⟨S4x1x256, .f32⟩
  | 41 => ⟨S4x256, .f32⟩
  | 42 => ⟨S4x256x1, .f32⟩
  | 43 => ⟨S4x1x16, .f32⟩
  | 44 => ⟨S4x16, .f32⟩
  | 45 => ⟨S4x1x16, .f32⟩
  | 46 => ⟨S4x256x16, .f32⟩
  | 47 => ⟨S4x256x16, .f32⟩
  | 48 => ⟨S4x256x16, .f32⟩
  | 49 => ⟨S4x256x16, .f32⟩
  | 50 => ⟨S4x1x16, .f32⟩
  | 51 => ⟨S4x16, .f32⟩
  | 52 => ⟨S4x1x16, .f32⟩
  | 53 => ⟨S4x256x16, .f32⟩
  | 54 => ⟨S4x256x16, .f32⟩
  | 55 => ⟨S_, .f32⟩
  | 56 => ⟨S4x256, .f32⟩
  | 57 => ⟨S_, .i32⟩
  | 58 => ⟨S1, .i32⟩
  | 59 => ⟨S4x512x256, .f32⟩
  | 60 => ⟨S4x256x16, .f32⟩
  | 61 => ⟨S4x256x16, .f32⟩
  | 62 => ⟨S4x1x256, .f32⟩
  | 63 => ⟨S4x256, .f32⟩
  | 64 => ⟨S4x256x1, .f32⟩
  | 65 => ⟨S4x1x16, .f32⟩
  | 66 => ⟨S4x16, .f32⟩
  | 67 => ⟨S4x1x16, .f32⟩
  | 68 => ⟨S4x256x16, .f32⟩
  | 69 => ⟨S4x256x16, .f32⟩
  | 70 => ⟨S4x256x16, .f32⟩
  | 71 => ⟨S4x256x16, .f32⟩
  | 72 => ⟨S4x1x16, .f32⟩
  | 73 => ⟨S4x16, .f32⟩
  | 74 => ⟨S4x1x16, .f32⟩
  | 75 => ⟨S4x256x16, .f32⟩
  | 76 => ⟨S4x256x16, .f32⟩
  | 77 => ⟨S_, .f32⟩
  | 78 => ⟨S4x256, .f32⟩
  | 79 => ⟨S_, .i32⟩
  | 80 => ⟨S1, .i32⟩
  | 81 => ⟨S4x512x256, .f32⟩
  | 82 => ⟨S4x256x16, .f32⟩
  | 83 => ⟨S4x256x16, .f32⟩
  | 84 => ⟨S4x1x256, .f32⟩
  | 85 => ⟨S4x256, .f32⟩
  | 86 => ⟨S4x256x1, .f32⟩
  | 87 => ⟨S4x1x16, .f32⟩
  | 88 => ⟨S4x16, .f32⟩
  | 89 => ⟨S4x1x16, .f32⟩
  | 90 => ⟨S4x256x16, .f32⟩
  | 91 => ⟨S4x256x16, .f32⟩
  | 92 => ⟨S4x256x16, .f32⟩
  | 93 => ⟨S4x256x16, .f32⟩
  | 94 => ⟨S4x1x16, .f32⟩
  | 95 => ⟨S4x16, .f32⟩
  | 96 => ⟨S4x1x16, .f32⟩
  | 97 => ⟨S4x256x16, .f32⟩
  | 98 => ⟨S4x256x16, .f32⟩
  | 99 => ⟨S_, .f32⟩
  | 100 => ⟨S4x256, .f32⟩
  | 101 => ⟨S_, .i32⟩
  | 102 => ⟨S1, .i32⟩
  | 103 => ⟨S4x512x256, .f32⟩
  | 104 => ⟨S4x256x16, .f32⟩
  | 105 => ⟨S4x256x16, .f32⟩
  | 106 => ⟨S4x1x256, .f32⟩
  | 107 => ⟨S4x256, .f32⟩
  | 108 => ⟨S4x256x1, .f32⟩
  | 109 => ⟨S4x1x16, .f32⟩
  | 110 => ⟨S4x16, .f32⟩
  | 111 => ⟨S4x1x16, .f32⟩
  | 112 => ⟨S4x256x16, .f32⟩
  | 113 => ⟨S4x256x16, .f32⟩
  | 114 => ⟨S4x256x16, .f32⟩
  | 115 => ⟨S4x256x16, .f32⟩
  | 116 => ⟨S4x1x16, .f32⟩
  | 117 => ⟨S4x16, .f32⟩
  | 118 => ⟨S4x1x16, .f32⟩
  | 119 => ⟨S4x256x16, .f32⟩
  | 120 => ⟨S4x256x16, .f32⟩
  | 121 => ⟨S_, .f32⟩
  | 122 => ⟨S4x256, .f32⟩
  | 123 => ⟨S_, .i32⟩
  | 124 => ⟨S1, .i32⟩
  | 125 => ⟨S4x512x256, .f32⟩
  | 126 => ⟨S4x256x16, .f32⟩
  | 127 => ⟨S4x256x16, .f32⟩
  | _ => ⟨S4x512x256, .f32⟩

abbrev hbmTy0_74 (i : Nat) : BufTy := match i % 128 with
  | 0 => ⟨S4x1x256, .f32⟩
  | 1 => ⟨S4x256, .f32⟩
  | 2 => ⟨S4x256x1, .f32⟩
  | 3 => ⟨S4x1x16, .f32⟩
  | 4 => ⟨S4x16, .f32⟩
  | 5 => ⟨S4x1x16, .f32⟩
  | 6 => ⟨S4x256x16, .f32⟩
  | 7 => ⟨S4x256x16, .f32⟩
  | 8 => ⟨S4x256x16, .f32⟩
  | 9 => ⟨S4x256x16, .f32⟩
  | 10 => ⟨S4x1x16, .f32⟩
  | 11 => ⟨S4x16, .f32⟩
  | 12 => ⟨S4x1x16, .f32⟩
  | 13 => ⟨S4x256x16, .f32⟩
  | 14 => ⟨S4x256x16, .f32⟩
  | 15 => ⟨S_, .f32⟩
  | 16 => ⟨S4x256, .f32⟩
  | 17 => ⟨S_, .i32⟩
  | 18 => ⟨S1, .i32⟩
  | 19 => ⟨S4x512x256, .f32⟩
  | 20 => ⟨S4x256x16, .f32⟩
  | 21 => ⟨S4x256x16, .f32⟩
  | 22 => ⟨S4x1x256, .f32⟩
  | 23 => ⟨S4x256, .f32⟩
  | 24 => ⟨S4x256x1, .f32⟩
  | 25 => ⟨S4x1x16, .f32⟩
  | 26 => ⟨S4x16, .f32⟩
  | 27 => ⟨S4x1x16, .f32⟩
  | 28 => ⟨S4x256x16, .f32⟩
  | 29 => ⟨S4x256x16, .f32⟩
  | 30 => ⟨S4x256x16, .f32⟩
  | 31 => ⟨S4x256x16, .f32⟩
  | 32 => ⟨S4x1x16, .f32⟩
  | 33 => ⟨S4x16, .f32⟩
  | 34 => ⟨S4x1x16, .f32⟩
  | 35 => ⟨S4x256x16, .f32⟩
  | 36 => ⟨S4x256x16, .f32⟩
  | 37 => ⟨S_, .f32⟩
  | 38 => ⟨S4x256, .f32⟩
  | 39 => ⟨S_, .i32⟩
  | 40 => ⟨S1, .i32⟩
  | 41 => ⟨S4x512x256, .f32⟩
  | 42 => ⟨S4x256x16, .f32⟩
  | 43 => ⟨S4x256x16, .f32⟩
  | 44 => ⟨S4x1x256, .f32⟩
  | 45 => ⟨S4x256, .f32⟩
  | 46 => ⟨S4x256x1, .f32⟩
  | 47 => ⟨S4x1x16, .f32⟩
  | 48 => ⟨S4x16, .f32⟩
  | 49 => ⟨S4x1x16, .f32⟩
  | 50 => ⟨S4x256x16, .f32⟩
  | 51 => ⟨S4x256x16, .f32⟩
  | 52 => ⟨S4x256x16, .f32⟩
  | 53 => ⟨S4x256x16, .f32⟩
  | 54 => ⟨S4x1x16, .f32⟩
  | 55 => ⟨S4x16, .f32⟩
  | 56 => ⟨S4x1x16, .f32⟩
  | 57 => ⟨S4x256x16, .f32⟩
  | 58 => ⟨S4x256x16, .f32⟩
  | 59 => ⟨S_, .f32⟩
  | 60 => ⟨S4x256, .f32⟩
  | 61 => ⟨S_, .i32⟩
  | 62 => ⟨S1, .i32⟩
  | 63 => ⟨S4x512x256, .f32⟩
  | 64 => ⟨S4x256x16, .f32⟩
  | 65 => ⟨S4x256x16, .f32⟩
  | 66 => ⟨S4x1x256, .f32⟩
  | 67 => ⟨S4x256, .f32⟩
  | 68 => ⟨S4x256x1, .f32⟩
  | 69 => ⟨S4x1x16, .f32⟩
  | 70 => ⟨S4x16, .f32⟩
  | 71 => ⟨S4x1x16, .f32⟩
  | 72 => ⟨S4x256x16, .f32⟩
  | 73 => ⟨S4x256x16, .f32⟩
  | 74 => ⟨S4x256x16, .f32⟩
  | 75 => ⟨S4x256x16, .f32⟩
  | 76 => ⟨S4x1x16, .f32⟩
  | 77 => ⟨S4x16, .f32⟩
  | 78 => ⟨S4x1x16, .f32⟩
  | 79 => ⟨S4x256x16, .f32⟩
  | 80 => ⟨S4x256x16, .f32⟩
  | 81 => ⟨S_, .f32⟩
  | 82 => ⟨S4x256, .f32⟩
  | 83 => ⟨S_, .i32⟩
  | 84 => ⟨S1, .i32⟩
  | 85 => ⟨S4x512x256, .f32⟩
  | 86 => ⟨S4x256x16, .f32⟩
  | 87 => ⟨S4x256x16, .f32⟩
  | 88 => ⟨S4x1x256, .f32⟩
  | 89 => ⟨S4x256, .f32⟩
  | 90 => ⟨S4x256x1, .f32⟩
  | 91 => ⟨S4x1x16, .f32⟩
  | 92 => ⟨S4x16, .f32⟩
  | 93 => ⟨S4x1x16, .f32⟩
  | 94 => ⟨S4x256x16, .f32⟩
  | 95 => ⟨S4x256x16, .f32⟩
  | 96 => ⟨S4x256x16, .f32⟩
  | 97 => ⟨S4x256x16, .f32⟩
  | 98 => ⟨S4x1x16, .f32⟩
  | 99 => ⟨S4x16, .f32⟩
  | 100 => ⟨S4x1x16, .f32⟩
  | 101 => ⟨S4x256x16, .f32⟩
  | 102 => ⟨S4x256x16, .f32⟩
  | 103 => ⟨S_, .f32⟩
  | 104 => ⟨S4x256, .f32⟩
  | 105 => ⟨S_, .i32⟩
  | 106 => ⟨S1, .i32⟩
  | 107 => ⟨S4x512x256, .f32⟩
  | 108 => ⟨S4x256x16, .f32⟩
  | 109 => ⟨S4x256x16, .f32⟩
  | 110 => ⟨S4x1x256, .f32⟩
  | 111 => ⟨S4x256, .f32⟩
  | 112 => ⟨S4x256x1, .f32⟩
  | 113 => ⟨S4x1x16, .f32⟩
  | 114 => ⟨S4x16, .f32⟩
  | 115 => ⟨S4x1x16, .f32⟩
  | 116 => ⟨S4x256x16, .f32⟩
  | 117 => ⟨S4x256x16, .f32⟩
  | 118 => ⟨S4x256x16, .f32⟩
  | 119 => ⟨S4x256x16, .f32⟩
  | 120 => ⟨S4x1x16, .f32⟩
  | 121 => ⟨S4x16, .f32⟩
  | 122 => ⟨S4x1x16, .f32⟩
  | 123 => ⟨S4x256x16, .f32⟩
  | 124 => ⟨S4x256x16, .f32⟩
  | 125 => ⟨S_, .f32⟩
  | 126 => ⟨S4x256, .f32⟩
  | 127 => ⟨S_, .i32⟩
  | _ => ⟨S4x512x256, .f32⟩

abbrev hbmTy0_75 (i : Nat) : BufTy := match i % 128 with
  | 0 => ⟨S1, .i32⟩
  | 1 => ⟨S4x512x256, .f32⟩
  | 2 => ⟨S4x256x16, .f32⟩
  | 3 => ⟨S4x256x16, .f32⟩
  | 4 => ⟨S4x1x256, .f32⟩
  | 5 => ⟨S4x256, .f32⟩
  | 6 => ⟨S4x256x1, .f32⟩
  | 7 => ⟨S4x1x16, .f32⟩
  | 8 => ⟨S4x16, .f32⟩
  | 9 => ⟨S4x1x16, .f32⟩
  | 10 => ⟨S4x256x16, .f32⟩
  | 11 => ⟨S4x256x16, .f32⟩
  | 12 => ⟨S4x256x16, .f32⟩
  | 13 => ⟨S4x256x16, .f32⟩
  | 14 => ⟨S4x1x16, .f32⟩
  | 15 => ⟨S4x16, .f32⟩
  | 16 => ⟨S4x1x16, .f32⟩
  | 17 => ⟨S4x256x16, .f32⟩
  | 18 => ⟨S4x256x16, .f32⟩
  | 19 => ⟨S_, .f32⟩
  | 20 => ⟨S4x256, .f32⟩
  | 21 => ⟨S_, .i32⟩
  | 22 => ⟨S1, .i32⟩
  | 23 => ⟨S4x512x256, .f32⟩
  | 24 => ⟨S4x256x16, .f32⟩
  | 25 => ⟨S4x256x16, .f32⟩
  | 26 => ⟨S4x1x256, .f32⟩
  | 27 => ⟨S4x256, .f32⟩
  | 28 => ⟨S4x256x1, .f32⟩
  | 29 => ⟨S4x1x16, .f32⟩
  | 30 => ⟨S4x16, .f32⟩
  | 31 => ⟨S4x1x16, .f32⟩
  | 32 => ⟨S4x256x16, .f32⟩
  | 33 => ⟨S4x256x16, .f32⟩
  | 34 => ⟨S4x256x16, .f32⟩
  | 35 => ⟨S4x256x16, .f32⟩
  | 36 => ⟨S4x1x16, .f32⟩
  | 37 => ⟨S4x16, .f32⟩
  | 38 => ⟨S4x1x16, .f32⟩
  | 39 => ⟨S4x256x16, .f32⟩
  | 40 => ⟨S4x256x16, .f32⟩
  | 41 => ⟨S_, .f32⟩
  | 42 => ⟨S4x256, .f32⟩
  | 43 => ⟨S_, .i32⟩
  | 44 => ⟨S1, .i32⟩
  | 45 => ⟨S4x512x256, .f32⟩
  | 46 => ⟨S4x256x16, .f32⟩
  | 47 => ⟨S4x256x16, .f32⟩
  | 48 => ⟨S4x1x256, .f32⟩
  | 49 => ⟨S4x256, .f32⟩
  | 50 => ⟨S4x256x1, .f32⟩
  | 51 => ⟨S4x1x16, .f32⟩
  | 52 => ⟨S4x16, .f32⟩
  | 53 => ⟨S4x1x16, .f32⟩
  | 54 => ⟨S4x256x16, .f32⟩
  | 55 => ⟨S4x256x16, .f32⟩
  | 56 => ⟨S4x256x16, .f32⟩
  | 57 => ⟨S4x256x16, .f32⟩
  | 58 => ⟨S4x1x16, .f32⟩
  | 59 => ⟨S4x16, .f32⟩
  | 60 => ⟨S4x1x16, .f32⟩
  | 61 => ⟨S4x256x16, .f32⟩
  | 62 => ⟨S4x256x16, .f32⟩
  | 63 => ⟨S_, .f32⟩
  | 64 => ⟨S4x256, .f32⟩
  | 65 => ⟨S_, .i32⟩
  | 66 => ⟨S1, .i32⟩
  | 67 => ⟨S4x512x256, .f32⟩
  | 68 => ⟨S4x256x16, .f32⟩
  | 69 => ⟨S4x256x16, .f32⟩
  | 70 => ⟨S4x1x256, .f32⟩
  | 71 => ⟨S4x256, .f32⟩
  | 72 => ⟨S4x256x1, .f32⟩
  | 73 => ⟨S4x1x16, .f32⟩
  | 74 => ⟨S4x16, .f32⟩
  | 75 => ⟨S4x1x16, .f32⟩
  | 76 => ⟨S4x256x16, .f32⟩
  | 77 => ⟨S4x256x16, .f32⟩
  | 78 => ⟨S4x256x16, .f32⟩
  | 79 => ⟨S4x256x16, .f32⟩
  | 80 => ⟨S4x1x16, .f32⟩
  | 81 => ⟨S4x16, .f32⟩
  | 82 => ⟨S4x1x16, .f32⟩
  | 83 => ⟨S4x256x16, .f32⟩
  | 84 => ⟨S4x256x16, .f32⟩
  | 85 => ⟨S_, .f32⟩
  | 86 => ⟨S4x256, .f32⟩
  | 87 => ⟨S_, .i32⟩
  | 88 => ⟨S1, .i32⟩
  | 89 => ⟨S4x512x256, .f32⟩
  | 90 => ⟨S4x256x16, .f32⟩
  | 91 => ⟨S4x256x16, .f32⟩
  | 92 => ⟨S4x1x256, .f32⟩
  | 93 => ⟨S4x256, .f32⟩
  | 94 => ⟨S4x256x1, .f32⟩
  | 95 => ⟨S4x1x16, .f32⟩
  | 96 => ⟨S4x16, .f32⟩
  | 97 => ⟨S4x1x16, .f32⟩
  | 98 => ⟨S4x256x16, .f32⟩
  | 99 => ⟨S4x256x16, .f32⟩
  | 100 => ⟨S4x256x16, .f32⟩
  | 101 => ⟨S4x256x16, .f32⟩
  | 102 => ⟨S4x1x16, .f32⟩
  | 103 => ⟨S4x16, .f32⟩
  | 104 => ⟨S4x1x16, .f32⟩
  | 105 => ⟨S4x256x16, .f32⟩
  | 106 => ⟨S4x256x16, .f32⟩
  | 107 => ⟨S_, .f32⟩
  | 108 => ⟨S4x256, .f32⟩
  | 109 => ⟨S_, .i32⟩
  | 110 => ⟨S1, .i32⟩
  | 111 => ⟨S4x512x256, .f32⟩
  | 112 => ⟨S4x256x16, .f32⟩
  | 113 => ⟨S4x256x16, .f32⟩
  | 114 => ⟨S4x1x256, .f32⟩
  | 115 => ⟨S4x256, .f32⟩
  | 116 => ⟨S4x256x1, .f32⟩
  | 117 => ⟨S4x1x16, .f32⟩
  | 118 => ⟨S4x16, .f32⟩
  | 119 => ⟨S4x1x16, .f32⟩
  | 120 => ⟨S4x256x16, .f32⟩
  | 121 => ⟨S4x256x16, .f32⟩
  | 122 => ⟨S4x256x16, .f32⟩
  | 123 => ⟨S4x256x16, .f32⟩
  | 124 => ⟨S4x1x16, .f32⟩
  | 125 => ⟨S4x16, .f32⟩
  | 126 => ⟨S4x1x16, .f32⟩
  | 127 => ⟨S4x256x16, .f32⟩
  | _ => ⟨S4x512x256, .f32⟩

abbrev hbmTy0_76 (i : Nat) : BufTy := match i % 128 with
  | 0 => ⟨S4x256x16, .f32⟩
  | 1 => ⟨S_, .f32⟩
  | 2 => ⟨S4x256, .f32⟩
  | 3 => ⟨S_, .i32⟩
  | 4 => ⟨S1, .i32⟩
  | 5 => ⟨S4x512x256, .f32⟩
  | 6 => ⟨S4x256x16, .f32⟩
  | 7 => ⟨S4x256x16, .f32⟩
  | 8 => ⟨S4x1x256, .f32⟩
  | 9 => ⟨S4x256, .f32⟩
  | 10 => ⟨S4x256x1, .f32⟩
  | 11 => ⟨S4x1x16, .f32⟩
  | 12 => ⟨S4x16, .f32⟩
  | 13 => ⟨S4x1x16, .f32⟩
  | 14 => ⟨S4x256x16, .f32⟩
  | 15 => ⟨S4x256x16, .f32⟩
  | 16 => ⟨S4x256x16, .f32⟩
  | 17 => ⟨S4x256x16, .f32⟩
  | 18 => ⟨S4x1x16, .f32⟩
  | 19 => ⟨S4x16, .f32⟩
  | 20 => ⟨S4x1x16, .f32⟩
  | 21 => ⟨S4x256x16, .f32⟩
  | 22 => ⟨S4x256x16, .f32⟩
  | 23 => ⟨S_, .f32⟩
  | 24 => ⟨S4x256, .f32⟩
  | 25 => ⟨S_, .i32⟩
  | 26 => ⟨S1, .i32⟩
  | 27 => ⟨S4x512x256, .f32⟩
  | 28 => ⟨S4x256x16, .f32⟩
  | 29 => ⟨S4x256x16, .f32⟩
  | 30 => ⟨S4x1x256, .f32⟩
  | 31 => ⟨S4x256, .f32⟩
  | 32 => ⟨S4x256x1, .f32⟩
  | 33 => ⟨S4x1x16, .f32⟩
  | 34 => ⟨S4x16, .f32⟩
  | 35 => ⟨S4x1x16, .f32⟩
  | 36 => ⟨S4x256x16, .f32⟩
  | 37 => ⟨S4x256x16, .f32⟩
  | 38 => ⟨S4x256x16, .f32⟩
  | 39 => ⟨S4x256x16, .f32⟩
  | 40 => ⟨S4x1x16, .f32⟩
  | 41 => ⟨S4x16, .f32⟩
  | 42 => ⟨S4x1x16, .f32⟩
  | 43 => ⟨S4x256x16, .f32⟩
  | 44 => ⟨S4x256x16, .f32⟩
  | 45 => ⟨S_, .f32⟩
  | 46 => ⟨S4x256, .f32⟩
  | 47 => ⟨S_, .i32⟩
  | 48 => ⟨S1, .i32⟩
  | 49 => ⟨S4x512x256, .f32⟩
  | 50 => ⟨S4x256x16, .f32⟩
  | 51 => ⟨S4x256x16, .f32⟩
  | 52 => ⟨S4x1x256, .f32⟩
  | 53 => ⟨S4x256, .f32⟩
  | 54 => ⟨S4x256x1, .f32⟩
  | 55 => ⟨S4x1x16, .f32⟩
  | 56 => ⟨S4x16, .f32⟩
  | 57 => ⟨S4x1x16, .f32⟩
  | 58 => ⟨S4x256x16, .f32⟩
  | 59 => ⟨S4x256x16, .f32⟩
  | 60 => ⟨S4x256x16, .f32⟩
  | 61 => ⟨S4x256x16, .f32⟩
  | 62 => ⟨S4x1x16, .f32⟩
  | 63 => ⟨S4x16, .f32⟩
  | 64 => ⟨S4x1x16, .f32⟩
  | 65 => ⟨S4x256x16, .f32⟩
  | 66 => ⟨S4x256x16, .f32⟩
  | 67 => ⟨S_, .f32⟩
  | 68 => ⟨S4x256, .f32⟩
  | 69 => ⟨S_, .i32⟩
  | 70 => ⟨S1, .i32⟩
  | 71 => ⟨S4x512x256, .f32⟩
  | 72 => ⟨S4x256x16, .f32⟩
  | 73 => ⟨S4x256x16, .f32⟩
  | 74 => ⟨S4x1x256, .f32⟩
  | 75 => ⟨S4x256, .f32⟩
  | 76 => ⟨S4x256x1, .f32⟩
  | 77 => ⟨S4x1x16, .f32⟩
  | 78 => ⟨S4x16, .f32⟩
  | 79 => ⟨S4x1x16, .f32⟩
  | 80 => ⟨S4x256x16, .f32⟩
  | 81 => ⟨S4x256x16, .f32⟩
  | 82 => ⟨S4x256x16, .f32⟩
  | 83 => ⟨S4x256x16, .f32⟩
  | 84 => ⟨S4x1x16, .f32⟩
  | 85 => ⟨S4x16, .f32⟩
  | 86 => ⟨S4x1x16, .f32⟩
  | 87 => ⟨S4x256x16, .f32⟩
  | 88 => ⟨S4x256x16, .f32⟩
  | 89 => ⟨S_, .f32⟩
  | 90 => ⟨S4x256, .f32⟩
  | 91 => ⟨S_, .i32⟩
  | 92 => ⟨S1, .i32⟩
  | 93 => ⟨S4x512x256, .f32⟩
  | 94 => ⟨S4x256x16, .f32⟩
  | 95 => ⟨S4x256x16, .f32⟩
  | 96 => ⟨S4x1x256, .f32⟩
  | 97 => ⟨S4x256, .f32⟩
  | 98 => ⟨S4x256x1, .f32⟩
  | 99 => ⟨S4x1x16, .f32⟩
  | 100 => ⟨S4x16, .f32⟩
  | 101 => ⟨S4x1x16, .f32⟩
  | 102 => ⟨S4x256x16, .f32⟩
  | 103 => ⟨S4x256x16, .f32⟩
  | 104 => ⟨S4x256x16, .f32⟩
  | 105 => ⟨S4x256x16, .f32⟩
  | 106 => ⟨S4x1x16, .f32⟩
  | 107 => ⟨S4x16, .f32⟩
  | 108 => ⟨S4x1x16, .f32⟩
  | 109 => ⟨S4x256x16, .f32⟩
  | 110 => ⟨S4x256x16, .f32⟩
  | 111 => ⟨S_, .f32⟩
  | 112 => ⟨S4x256, .f32⟩
  | 113 => ⟨S_, .i32⟩
  | 114 => ⟨S1, .i32⟩
  | 115 => ⟨S4x512x256, .f32⟩
  | 116 => ⟨S4x256x16, .f32⟩
  | 117 => ⟨S4x256x16, .f32⟩
  | 118 => ⟨S4x1x256, .f32⟩
  | 119 => ⟨S4x256, .f32⟩
  | 120 => ⟨S4x256x1, .f32⟩
  | 121 => ⟨S4x1x16, .f32⟩
  | 122 => ⟨S4x16, .f32⟩
  | 123 => ⟨S4x1x16, .f32⟩
  | 124 => ⟨S4x256x16, .f32⟩
  | 125 => ⟨S4x256x16, .f32⟩
  | 126 => ⟨S4x256x16, .f32⟩
  | 127 => ⟨S4x256x16, .f32⟩
  | _ => ⟨S4x512x256, .f32⟩

abbrev hbmTy0_77 (i : Nat) : BufTy := match i % 128 with
  | 0 => ⟨S4x1x16, .f32⟩
  | 1 => ⟨S4x16, .f32⟩
  | 2 => ⟨S4x1x16, .f32⟩
  | 3 => ⟨S4x256x16, .f32⟩
  | 4 => ⟨S4x256x16, .f32⟩
  | 5 => ⟨S_, .f32⟩
  | 6 => ⟨S4x256, .f32⟩
  | 7 => ⟨S_, .i32⟩
  | 8 => ⟨S1, .i32⟩
  | 9 => ⟨S4x512x256, .f32⟩
  | 10 => ⟨S4x256x16, .f32⟩
  | 11 => ⟨S4x256x16, .f32⟩
  | 12 => ⟨S4x1x256, .f32⟩
  | 13 => ⟨S4x256, .f32⟩
  | 14 => ⟨S4x256x1, .f32⟩
  | 15 => ⟨S4x1x16, .f32⟩
  | 16 => ⟨S4x16, .f32⟩
  | 17 => ⟨S4x1x16, .f32⟩
  | 18 => ⟨S4x256x16, .f32⟩
  | 19 => ⟨S4x256x16, .f32⟩
  | 20 => ⟨S4x256x16, .f32⟩
  | 21 => ⟨S4x256x16, .f32⟩
  | 22 => ⟨S4x1x16, .f32⟩
  | 23 => ⟨S4x16, .f32⟩
  | 24 => ⟨S4x1x16, .f32⟩
  | 25 => ⟨S4x256x16, .f32⟩
  | 26 => ⟨S4x256x16, .f32⟩
  | 27 => ⟨S_, .f32⟩
  | 28 => ⟨S4x256, .f32⟩
  | 29 => ⟨S_, .i32⟩
  | 30 => ⟨S1, .i32⟩
  | 31 => ⟨S4x512x256, .f32⟩
  | 32 => ⟨S4x256x16, .f32⟩
  | 33 => ⟨S4x256x16, .f32⟩
  | 34 => ⟨S4x1x256, .f32⟩
  | 35 => ⟨S4x256, .f32⟩
  | 36 => ⟨S4x256x1, .f32⟩
  | 37 => ⟨S4x1x16, .f32⟩
  | 38 => ⟨S4x16, .f32⟩
  | 39 => ⟨S4x1x16, .f32⟩
  | 40 => ⟨S4x256x16, .f32⟩
  | 41 => ⟨S4x256x16, .f32⟩
  | 42 => ⟨S4x256x16, .f32⟩
  | 43 => ⟨S4x256x16, .f32⟩
  | 44 => ⟨S4x1x16, .f32⟩
  | 45 => ⟨S4x16, .f32⟩
  | 46 => ⟨S4x1x16, .f32⟩
  | 47 => ⟨S4x256x16, .f32⟩
  | 48 => ⟨S4x256x16, .f32⟩
  | 49 => ⟨S_, .f32⟩
  | 50 => ⟨S4x256, .f32⟩
  | 51 => ⟨S_, .i32⟩
  | 52 => ⟨S1, .i32⟩
  | 53 => ⟨S4x512x256, .f32⟩
  | 54 => ⟨S4x256x16, .f32⟩
  | 55 => ⟨S4x256x16, .f32⟩
  | 56 => ⟨S4x1x256, .f32⟩
  | 57 => ⟨S4x256, .f32⟩
  | 58 => ⟨S4x256x1, .f32⟩
  | 59 => ⟨S4x1x16, .f32⟩
  | 60 => ⟨S4x16, .f32⟩
  | 61 => ⟨S4x1x16, .f32⟩
  | 62 => ⟨S4x256x16, .f32⟩
  | 63 => ⟨S4x256x16, .f32⟩
  | 64 => ⟨S4x256x16, .f32⟩
  | 65 => ⟨S4x256x16, .f32⟩
  | 66 => ⟨S4x1x16, .f32⟩
  | 67 => ⟨S4x16, .f32⟩
  | 68 => ⟨S4x1x16, .f32⟩
  | 69 => ⟨S4x256x16, .f32⟩
  | 70 => ⟨S4x256x16, .f32⟩
  | 71 => ⟨S_, .f32⟩
  | 72 => ⟨S4x256, .f32⟩
  | 73 => ⟨S_, .i32⟩
  | 74 => ⟨S1, .i32⟩
  | 75 => ⟨S4x512x256, .f32⟩
  | 76 => ⟨S4x256x16, .f32⟩
  | 77 => ⟨S4x256x16, .f32⟩
  | 78 => ⟨S4x1x256, .f32⟩
  | 79 => ⟨S4x256, .f32⟩
  | 80 => ⟨S4x256x1, .f32⟩
  | 81 => ⟨S4x1x16, .f32⟩
  | 82 => ⟨S4x16, .f32⟩
  | 83 => ⟨S4x1x16, .f32⟩
  | 84 => ⟨S4x256x16, .f32⟩
  | 85 => ⟨S4x256x16, .f32⟩
  | 86 => ⟨S4x256x16, .f32⟩
  | 87 => ⟨S4x256x16, .f32⟩
  | 88 => ⟨S4x1x16, .f32⟩
  | 89 => ⟨S4x16, .f32⟩
  | 90 => ⟨S4x1x16, .f32⟩
  | 91 => ⟨S4x256x16, .f32⟩
  | 92 => ⟨S4x256x16, .f32⟩
  | 93 => ⟨S_, .f32⟩
  | 94 => ⟨S4x256, .f32⟩
  | 95 => ⟨S_, .i32⟩
  | 96 => ⟨S1, .i32⟩
  | 97 => ⟨S4x512x256, .f32⟩
  | 98 => ⟨S4x256x16, .f32⟩
  | 99 => ⟨S4x256x16, .f32⟩
  | 100 => ⟨S4x1x256, .f32⟩
  | 101 => ⟨S4x256, .f32⟩
  | 102 => ⟨S4x256x1, .f32⟩
  | 103 => ⟨S4x1x16, .f32⟩
  | 104 => ⟨S4x16, .f32⟩
  | 105 => ⟨S4x1x16, .f32⟩
  | 106 => ⟨S4x256x16, .f32⟩
  | 107 => ⟨S4x256x16, .f32⟩
  | 108 => ⟨S4x256x16, .f32⟩
  | 109 => ⟨S4x256x16, .f32⟩
  | 110 => ⟨S4x1x16, .f32⟩
  | 111 => ⟨S4x16, .f32⟩
  | 112 => ⟨S4x1x16, .f32⟩
  | 113 => ⟨S4x256x16, .f32⟩
  | 114 => ⟨S4x256x16, .f32⟩
  | 115 => ⟨S_, .f32⟩
  | 116 => ⟨S4x256, .f32⟩
  | 117 => ⟨S_, .i32⟩
  | 118 => ⟨S1, .i32⟩
  | 119 => ⟨S4x512x256, .f32⟩
  | 120 => ⟨S4x256x16, .f32⟩
  | 121 => ⟨S4x256x16, .f32⟩
  | 122 => ⟨S4x1x256, .f32⟩
  | 123 => ⟨S4x256, .f32⟩
  | 124 => ⟨S4x256x1, .f32⟩
  | 125 => ⟨S4x1x16, .f32⟩
  | 126 => ⟨S4x16, .f32⟩
  | 127 => ⟨S4x1x16, .f32⟩
  | _ => ⟨S4x512x256, .f32⟩

abbrev hbmTy0_78 (i : Nat) : BufTy := match i % 128 with
  | 0 => ⟨S4x256x16, .f32⟩
  | 1 => ⟨S4x256x16, .f32⟩
  | 2 => ⟨S4x256x16, .f32⟩
  | 3 => ⟨S4x256x16, .f32⟩
  | 4 => ⟨S4x1x16, .f32⟩
  | 5 => ⟨S4x16, .f32⟩
  | 6 => ⟨S4x1x16, .f32⟩
  | 7 => ⟨S4x256x16, .f32⟩
  | 8 => ⟨S4x256x16, .f32⟩
  | 9 => ⟨S_, .f32⟩
  | 10 => ⟨S4x256, .f32⟩
  | 11 => ⟨S_, .i32⟩
  | 12 => ⟨S1, .i32⟩
  | 13 => ⟨S4x512x256, .f32⟩
  | 14 => ⟨S4x256x16, .f32⟩
  | 15 => ⟨S4x256x16, .f32⟩
  | 16 => ⟨S4x1x256, .f32⟩
  | 17 => ⟨S4x256, .f32⟩
  | 18 => ⟨S4x256x1, .f32⟩
  | 19 => ⟨S4x1x16, .f32⟩
  | 20 => ⟨S4x16, .f32⟩
  | 21 => ⟨S4x1x16, .f32⟩
  | 22 => ⟨S4x256x16, .f32⟩
  | 23 => ⟨S4x256x16, .f32⟩
  | 24 => ⟨S4x256x16, .f32⟩
  | 25 => ⟨S4x256x16, .f32⟩
  | 26 => ⟨S4x1x16, .f32⟩
  | 27 => ⟨S4x16, .f32⟩
  | 28 => ⟨S4x1x16, .f32⟩
  | 29 => ⟨S4x256x16, .f32⟩
  | 30 => ⟨S4x256x16, .f32⟩
  | 31 => ⟨S_, .f32⟩
  | 32 => ⟨S4x256, .f32⟩
  | 33 => ⟨S_, .i32⟩
  | 34 => ⟨S1, .i32⟩
  | 35 => ⟨S4x512x256, .f32⟩
  | 36 => ⟨S4x256x16, .f32⟩
  | 37 => ⟨S4x256x16, .f32⟩
  | 38 => ⟨S4x1x256, .f32⟩
  | 39 => ⟨S4x256, .f32⟩
  | 40 => ⟨S4x256x1, .f32⟩
  | 41 => ⟨S4x1x16, .f32⟩
  | 42 => ⟨S4x16, .f32⟩
  | 43 => ⟨S4x1x16, .f32⟩
  | 44 => ⟨S4x256x16, .f32⟩
  | 45 => ⟨S4x256x16, .f32⟩
  | 46 => ⟨S4x256x16, .f32⟩
  | 47 => ⟨S4x256x16, .f32⟩
  | 48 => ⟨S4x1x16, .f32⟩
  | 49 => ⟨S4x16, .f32⟩
  | 50 => ⟨S4x1x16, .f32⟩
  | 51 => ⟨S4x256x16, .f32⟩
  | 52 => ⟨S4x256x16, .f32⟩
  | 53 => ⟨S_, .f32⟩
  | 54 => ⟨S4x256, .f32⟩
  | 55 => ⟨S_, .i32⟩
  | 56 => ⟨S1, .i32⟩
  | 57 => ⟨S4x512x256, .f32⟩
  | 58 => ⟨S4x256x16, .f32⟩
  | 59 => ⟨S4x256x16, .f32⟩
  | 60 => ⟨S4x1x256, .f32⟩
  | 61 => ⟨S4x256, .f32⟩
  | 62 => ⟨S4x256x1, .f32⟩
  | 63 => ⟨S4x1x16, .f32⟩
  | 64 => ⟨S4x16, .f32⟩
  | 65 => ⟨S4x1x16, .f32⟩
  | 66 => ⟨S4x256x16, .f32⟩
  | 67 => ⟨S4x256x16, .f32⟩
  | 68 => ⟨S4x256x16, .f32⟩
  | 69 => ⟨S4x256x16, .f32⟩
  | 70 => ⟨S4x1x16, .f32⟩
  | 71 => ⟨S4x16, .f32⟩
  | 72 => ⟨S4x1x16, .f32⟩
  | 73 => ⟨S4x256x16, .f32⟩
  | 74 => ⟨S4x256x16, .f32⟩
  | 75 => ⟨S_, .f32⟩
  | 76 => ⟨S4x256, .f32⟩
  | 77 => ⟨S_, .i32⟩
  | 78 => ⟨S1, .i32⟩
  | 79 => ⟨S4x512x256, .f32⟩
  | 80 => ⟨S4x256x16, .f32⟩
  | 81 => ⟨S4x256x16, .f32⟩
  | 82 => ⟨S4x1x256, .f32⟩
  | 83 => ⟨S4x256, .f32⟩
  | 84 => ⟨S4x256x1, .f32⟩
  | 85 => ⟨S4x1x16, .f32⟩
  | 86 => ⟨S4x16, .f32⟩
  | 87 => ⟨S4x1x16, .f32⟩
  | 88 => ⟨S4x256x16, .f32⟩
  | 89 => ⟨S4x256x16, .f32⟩
  | 90 => ⟨S4x256x16, .f32⟩
  | 91 => ⟨S4x256x16, .f32⟩
  | 92 => ⟨S4x1x16, .f32⟩
  | 93 => ⟨S4x16, .f32⟩
  | 94 => ⟨S4x1x16, .f32⟩
  | 95 => ⟨S4x256x16, .f32⟩
  | 96 => ⟨S4x256x16, .f32⟩
  | 97 => ⟨S_, .f32⟩
  | 98 => ⟨S4x256, .f32⟩
  | 99 => ⟨S_, .i32⟩
  | 100 => ⟨S1, .i32⟩
  | 101 => ⟨S4x512x256, .f32⟩
  | 102 => ⟨S4x256x16, .f32⟩
  | 103 => ⟨S4x256x16, .f32⟩
  | 104 => ⟨S4x1x256, .f32⟩
  | 105 => ⟨S4x256, .f32⟩
  | 106 => ⟨S4x256x1, .f32⟩
  | 107 => ⟨S4x1x16, .f32⟩
  | 108 => ⟨S4x16, .f32⟩
  | 109 => ⟨S4x1x16, .f32⟩
  | 110 => ⟨S4x256x16, .f32⟩
  | 111 => ⟨S4x256x16, .f32⟩
  | 112 => ⟨S4x256x16, .f32⟩
  | 113 => ⟨S4x256x16, .f32⟩
  | 114 => ⟨S4x1x16, .f32⟩
  | 115 => ⟨S4x16, .f32⟩
  | 116 => ⟨S4x1x16, .f32⟩
  | 117 => ⟨S4x256x16, .f32⟩
  | 118 => ⟨S4x256x16, .f32⟩
  | 119 => ⟨S_, .f32⟩
  | 120 => ⟨S4x256, .f32⟩
  | 121 => ⟨S_, .i32⟩
  | 122 => ⟨S1, .i32⟩
  | 123 => ⟨S4x512x256, .f32⟩
  | 124 => ⟨S4x256x16, .f32⟩
  | 125 => ⟨S4x256x16, .f32⟩
  | 126 => ⟨S4x1x256, .f32⟩
  | 127 => ⟨S4x256, .f32⟩
  | _ => ⟨S4x512x256, .f32⟩

abbrev hbmTy0_79 (i : Nat) : BufTy := match i % 128 with
  | 0 => ⟨S4x256x1, .f32⟩
  | 1 => ⟨S4x1x16, .f32⟩
  | 2 => ⟨S4x16, .f32⟩
  | 3 => ⟨S4x1x16, .f32⟩
  | 4 => ⟨S4x256x16, .f32⟩
  | 5 => ⟨S4x256x16, .f32⟩
  | 6 => ⟨S4x256x16, .f32⟩
  | 7 => ⟨S4x256x16, .f32⟩
  | 8 => ⟨S4x1x16, .f32⟩
  | 9 => ⟨S4x16, .f32⟩
  | 10 => ⟨S4x1x16, .f32⟩
  | 11 => ⟨S4x256x16, .f32⟩
  | 12 => ⟨S4x256x16, .f32⟩
  | 13 => ⟨S_, .f32⟩
  | 14 => ⟨S4x256, .f32⟩
  | 15 => ⟨S_, .i32⟩
  | 16 => ⟨S1, .i32⟩
  | 17 => ⟨S4x512x256, .f32⟩
  | 18 => ⟨S4x256x16, .f32⟩
  | 19 => ⟨S4x256x16, .f32⟩
  | 20 => ⟨S4x1x256, .f32⟩
  | 21 => ⟨S4x256, .f32⟩
  | 22 => ⟨S4x256x1, .f32⟩
  | 23 => ⟨S4x1x16, .f32⟩
  | 24 => ⟨S4x16, .f32⟩
  | 25 => ⟨S4x1x16, .f32⟩
  | 26 => ⟨S4x256x16, .f32⟩
  | 27 => ⟨S4x256x16, .f32⟩
  | 28 => ⟨S4x256x16, .f32⟩
  | 29 => ⟨S4x256x16, .f32⟩
  | 30 => ⟨S4x1x16, .f32⟩
  | 31 => ⟨S4x16, .f32⟩
  | 32 => ⟨S4x1x16, .f32⟩
  | 33 => ⟨S4x256x16, .f32⟩
  | 34 => ⟨S4x256x16, .f32⟩
  | 35 => ⟨S_, .f32⟩
  | 36 => ⟨S4x256, .f32⟩
  | 37 => ⟨S_, .i32⟩
  | 38 => ⟨S1, .i32⟩
  | 39 => ⟨S4x512x256, .f32⟩
  | 40 => ⟨S4x256x16, .f32⟩
  | 41 => ⟨S4x256x16, .f32⟩
  | 42 => ⟨S4x1x256, .f32⟩
  | 43 => ⟨S4x256, .f32⟩
  | 44 => ⟨S4x256x1, .f32⟩
  | 45 => ⟨S4x1x16, .f32⟩
  | 46 => ⟨S4x16, .f32⟩
  | 47 => ⟨S4x1x16, .f32⟩
  | 48 => ⟨S4x256x16, .f32⟩
  | 49 => ⟨S4x256x16, .f32⟩
  | 50 => ⟨S4x256x16, .f32⟩
  | 51 => ⟨S4x256x16, .f32⟩
  | 52 => ⟨S4x1x16, .f32⟩
  | 53 => ⟨S4x16, .f32⟩
  | 54 => ⟨S4x1x16, .f32⟩
  | 55 => ⟨S4x256x16, .f32⟩
  | 56 => ⟨S4x256x16, .f32⟩
  | 57 => ⟨S_, .f32⟩
  | 58 => ⟨S4x256, .f32⟩
  | 59 => ⟨S_, .i32⟩
  | 60 => ⟨S1, .i32⟩
  | 61 => ⟨S4x512x256, .f32⟩
  | 62 => ⟨S4x256x16, .f32⟩
  | 63 => ⟨S4x256x16, .f32⟩
  | 64 => ⟨S4x1x256, .f32⟩
  | 65 => ⟨S4x256, .f32⟩
  | 66 => ⟨S4x256x1, .f32⟩
  | 67 => ⟨S4x1x16, .f32⟩
  | 68 => ⟨S4x16, .f32⟩
  | 69 => ⟨S4x1x16, .f32⟩
  | 70 => ⟨S4x256x16, .f32⟩
  | 71 => ⟨S4x256x16, .f32⟩
  | 72 => ⟨S4x256x16, .f32⟩
  | 73 => ⟨S4x256x16, .f32⟩
  | 74 => ⟨S4x1x16, .f32⟩
  | 75 => ⟨S4x16, .f32⟩
  | 76 => ⟨S4x1x16, .f32⟩
  | 77 => ⟨S4x256x16, .f32⟩
  | 78 => ⟨S4x256x16, .f32⟩
  | 79 => ⟨S_, .f32⟩
  | 80 => ⟨S4x256, .f32⟩
  | 81 => ⟨S_, .i32⟩
  | 82 => ⟨S1, .i32⟩
  | 83 => ⟨S4x512x256, .f32⟩
  | 84 => ⟨S4x256x16, .f32⟩
  | 85 => ⟨S4x256x16, .f32⟩
  | 86 => ⟨S4x1x256, .f32⟩
  | 87 => ⟨S4x256, .f32⟩
  | 88 => ⟨S4x256x1, .f32⟩
  | 89 => ⟨S4x1x16, .f32⟩
  | 90 => ⟨S4x16, .f32⟩
  | 91 => ⟨S4x1x16, .f32⟩
  | 92 => ⟨S4x256x16, .f32⟩
  | 93 => ⟨S4x256x16, .f32⟩
  | 94 => ⟨S4x256x16, .f32⟩
  | 95 => ⟨S4x256x16, .f32⟩
  | 96 => ⟨S4x1x16, .f32⟩
  | 97 => ⟨S4x16, .f32⟩
  | 98 => ⟨S4x1x16, .f32⟩
  | 99 => ⟨S4x256x16, .f32⟩
  | 100 => ⟨S4x256x16, .f32⟩
  | 101 => ⟨S_, .f32⟩
  | 102 => ⟨S4x256, .f32⟩
  | 103 => ⟨S_, .i32⟩
  | 104 => ⟨S1, .i32⟩
  | 105 => ⟨S4x512x256, .f32⟩
  | 106 => ⟨S4x256x16, .f32⟩
  | 107 => ⟨S4x256x16, .f32⟩
  | 108 => ⟨S4x1x256, .f32⟩
  | 109 => ⟨S4x256, .f32⟩
  | 110 => ⟨S4x256x1, .f32⟩
  | 111 => ⟨S4x1x16, .f32⟩
  | 112 => ⟨S4x16, .f32⟩
  | 113 => ⟨S4x1x16, .f32⟩
  | 114 => ⟨S4x256x16, .f32⟩
  | 115 => ⟨S4x256x16, .f32⟩
  | 116 => ⟨S4x256x16, .f32⟩
  | 117 => ⟨S4x256x16, .f32⟩
  | 118 => ⟨S4x1x16, .f32⟩
  | 119 => ⟨S4x16, .f32⟩
  | 120 => ⟨S4x1x16, .f32⟩
  | 121 => ⟨S4x256x16, .f32⟩
  | 122 => ⟨S4x256x16, .f32⟩
  | 123 => ⟨S_, .f32⟩
  | 124 => ⟨S4x256, .f32⟩
  | 125 => ⟨S_, .i32⟩
  | 126 => ⟨S1, .i32⟩
  | 127 => ⟨S4x512x256, .f32⟩
  | _ => ⟨S4x512x256, .f32⟩

abbrev hbmTy0_80 (i : Nat) : BufTy := match i % 128 with
  | 0 => ⟨S4x256x16, .f32⟩
  | 1 => ⟨S4x256x16, .f32⟩
  | 2 => ⟨S4x1x256, .f32⟩
  | 3 => ⟨S4x256, .f32⟩
  | 4 => ⟨S4x256x1, .f32⟩
  | 5 => ⟨S4x1x16, .f32⟩
  | 6 => ⟨S4x16, .f32⟩
  | 7 => ⟨S4x1x16, .f32⟩
  | 8 => ⟨S4x256x16, .f32⟩
  | 9 => ⟨S4x256x16, .f32⟩
  | 10 => ⟨S4x256x16, .f32⟩
  | 11 => ⟨S4x256x16, .f32⟩
  | 12 => ⟨S4x1x16, .f32⟩
  | 13 => ⟨S4x16, .f32⟩
  | 14 => ⟨S4x1x16, .f32⟩
  | 15 => ⟨S4x256x16, .f32⟩
  | 16 => ⟨S4x256x16, .f32⟩
  | 17 => ⟨S_, .f32⟩
  | 18 => ⟨S4x256, .f32⟩
  | 19 => ⟨S_, .i32⟩
  | 20 => ⟨S1, .i32⟩
  | 21 => ⟨S4x512x256, .f32⟩
  | 22 => ⟨S4x256x16, .f32⟩
  | 23 => ⟨S4x256x16, .f32⟩
  | 24 => ⟨S4x1x256, .f32⟩
  | 25 => ⟨S4x256, .f32⟩
  | 26 => ⟨S4x256x1, .f32⟩
  | 27 => ⟨S4x1x16, .f32⟩
  | 28 => ⟨S4x16, .f32⟩
  | 29 => ⟨S4x1x16, .f32⟩
  | 30 => ⟨S4x256x16, .f32⟩
  | 31 => ⟨S4x256x16, .f32⟩
  | 32 => ⟨S4x256x16, .f32⟩
  | 33 => ⟨S4x256x16, .f32⟩
  | 34 => ⟨S4x1x16, .f32⟩
  | 35 => ⟨S4x16, .f32⟩
  | 36 => ⟨S4x1x16, .f32⟩
  | 37 => ⟨S4x256x16, .f32⟩
  | 38 => ⟨S4x256x16, .f32⟩
  | 39 => ⟨S_, .f32⟩
  | 40 => ⟨S4x256, .f32⟩
  | 41 => ⟨S_, .i32⟩
  | 42 => ⟨S1, .i32⟩
  | 43 => ⟨S4x512x256, .f32⟩
  | 44 => ⟨S4x256x16, .f32⟩
  | 45 => ⟨S4x256x16, .f32⟩
  | 46 => ⟨S4x1x256, .f32⟩
  | 47 => ⟨S4x256, .f32⟩
  | 48 => ⟨S4x256x1, .f32⟩
  | 49 => ⟨S4x1x16, .f32⟩
  | 50 => ⟨S4x16, .f32⟩
  | 51 => ⟨S4x1x16, .f32⟩
  | 52 => ⟨S4x256x16, .f32⟩
  | 53 => ⟨S4x256x16, .f32⟩
  | 54 => ⟨S4x256x16, .f32⟩
  | 55 => ⟨S4x256x16, .f32⟩
  | 56 => ⟨S4x1x16, .f32⟩
  | 57 => ⟨S4x16, .f32⟩
  | 58 => ⟨S4x1x16, .f32⟩
  | 59 => ⟨S4x256x16, .f32⟩
  | 60 => ⟨S4x256x16, .f32⟩
  | 61 => ⟨S_, .f32⟩
  | 62 => ⟨S4x256, .f32⟩
  | 63 => ⟨S_, .i32⟩
  | 64 => ⟨S1, .i32⟩
  | 65 => ⟨S4x512x256, .f32⟩
  | 66 => ⟨S4x256x16, .f32⟩
  | 67 => ⟨S4x256x16, .f32⟩
  | 68 => ⟨S4x1x256, .f32⟩
  | 69 => ⟨S4x256, .f32⟩
  | 70 => ⟨S4x256x1, .f32⟩
  | 71 => ⟨S4x1x16, .f32⟩
  | 72 => ⟨S4x16, .f32⟩
  | 73 => ⟨S4x1x16, .f32⟩
  | 74 => ⟨S4x256x16, .f32⟩
  | 75 => ⟨S4x256x16, .f32⟩
  | 76 => ⟨S4x256x16, .f32⟩
  | 77 => ⟨S4x256x16, .f32⟩
  | 78 => ⟨S4x1x16, .f32⟩
  | 79 => ⟨S4x16, .f32⟩
  | 80 => ⟨S4x1x16, .f32⟩
  | 81 => ⟨S4x256x16, .f32⟩
  | 82 => ⟨S4x256x16, .f32⟩
  | 83 => ⟨S_, .f32⟩
  | 84 => ⟨S4x256, .f32⟩
  | 85 => ⟨S_, .i32⟩
  | 86 => ⟨S1, .i32⟩
  | 87 => ⟨S4x512x256, .f32⟩
  | 88 => ⟨S4x256x16, .f32⟩
  | 89 => ⟨S4x256x16, .f32⟩
  | 90 => ⟨S4x1x256, .f32⟩
  | 91 => ⟨S4x256, .f32⟩
  | 92 => ⟨S4x256x1, .f32⟩
  | 93 => ⟨S4x1x16, .f32⟩
  | 94 => ⟨S4x16, .f32⟩
  | 95 => ⟨S4x1x16, .f32⟩
  | 96 => ⟨S4x256x16, .f32⟩
  | 97 => ⟨S4x256x16, .f32⟩
  | 98 => ⟨S4x256x16, .f32⟩
  | 99 => ⟨S4x256x16, .f32⟩
  | 100 => ⟨S4x1x16, .f32⟩
  | 101 => ⟨S4x16, .f32⟩
  | 102 => ⟨S4x1x16, .f32⟩
  | 103 => ⟨S4x256x16, .f32⟩
  | 104 => ⟨S4x256x16, .f32⟩
  | 105 => ⟨S_, .f32⟩
  | 106 => ⟨S4x256, .f32⟩
  | 107 => ⟨S_, .i32⟩
  | 108 => ⟨S1, .i32⟩
  | 109 => ⟨S4x512x256, .f32⟩
  | 110 => ⟨S4x256x16, .f32⟩
  | 111 => ⟨S4x256x16, .f32⟩
  | 112 => ⟨S4x1x256, .f32⟩
  | 113 => ⟨S4x256, .f32⟩
  | 114 => ⟨S4x256x1, .f32⟩
  | 115 => ⟨S4x1x16, .f32⟩
  | 116 => ⟨S4x16, .f32⟩
  | 117 => ⟨S4x1x16, .f32⟩
  | 118 => ⟨S4x256x16, .f32⟩
  | 119 => ⟨S4x256x16, .f32⟩
  | 120 => ⟨S4x256x16, .f32⟩
  | 121 => ⟨S4x256x16, .f32⟩
  | 122 => ⟨S4x1x16, .f32⟩
  | 123 => ⟨S4x16, .f32⟩
  | 124 => ⟨S4x1x16, .f32⟩
  | 125 => ⟨S4x256x16, .f32⟩
  | 126 => ⟨S4x256x16, .f32⟩
  | 127 => ⟨S_, .f32⟩
  | _ => ⟨S4x512x256, .f32⟩

abbrev hbmTy0_81 (i : Nat) : BufTy := match i % 128 with
  | 0 => ⟨S4x256, .f32⟩
  | 1 => ⟨S_, .i32⟩
  | 2 => ⟨S1, .i32⟩
  | 3 => ⟨S4x512x256, .f32⟩
  | 4 => ⟨S4x256x16, .f32⟩
  | 5 => ⟨S4x256x16, .f32⟩
  | 6 => ⟨S4x1x256, .f32⟩
  | 7 => ⟨S4x256, .f32⟩
  | 8 => ⟨S4x256x1, .f32⟩
  | 9 => ⟨S4x1x16, .f32⟩
  | 10 => ⟨S4x16, .f32⟩
  | 11 => ⟨S4x1x16, .f32⟩
  | 12 => ⟨S4x256x16, .f32⟩
  | 13 => ⟨S4x256x16, .f32⟩
  | 14 => ⟨S4x256x16, .f32⟩
  | 15 => ⟨S4x256x16, .f32⟩
  | 16 => ⟨S4x1x16, .f32⟩
  | 17 => ⟨S4x16, .f32⟩
  | 18 => ⟨S4x1x16, .f32⟩
  | 19 => ⟨S4x256x16, .f32⟩
  | 20 => ⟨S4x256x16, .f32⟩
  | 21 => ⟨S_, .f32⟩
  | 22 => ⟨S4x256, .f32⟩
  | 23 => ⟨S_, .i32⟩
  | 24 => ⟨S1, .i32⟩
  | 25 => ⟨S4x512x256, .f32⟩
  | 26 => ⟨S4x256x16, .f32⟩
  | 27 => ⟨S4x256x16, .f32⟩
  | 28 => ⟨S4x1x256, .f32⟩
  | 29 => ⟨S4x256, .f32⟩
  | 30 => ⟨S4x256x1, .f32⟩
  | 31 => ⟨S4x1x16, .f32⟩
  | 32 => ⟨S4x16, .f32⟩
  | 33 => ⟨S4x1x16, .f32⟩
  | 34 => ⟨S4x256x16, .f32⟩
  | 35 => ⟨S4x256x16, .f32⟩
  | 36 => ⟨S4x256x16, .f32⟩
  | 37 => ⟨S4x256x16, .f32⟩
  | 38 => ⟨S4x1x16, .f32⟩
  | 39 => ⟨S4x16, .f32⟩
  | 40 => ⟨S4x1x16, .f32⟩
  | 41 => ⟨S4x256x16, .f32⟩
  | 42 => ⟨S4x256x16, .f32⟩
  | 43 => ⟨S_, .f32⟩
  | 44 => ⟨S4x256, .f32⟩
  | 45 => ⟨S_, .i32⟩
  | 46 => ⟨S1, .i32⟩
  | 47 => ⟨S4x512x256, .f32⟩
  | 48 => ⟨S4x256x16, .f32⟩
  | 49 => ⟨S4x256x16, .f32⟩
  | 50 => ⟨S4x1x256, .f32⟩
  | 51 => ⟨S4x256, .f32⟩
  | 52 => ⟨S4x256x1, .f32⟩
  | 53 => ⟨S4x1x16, .f32⟩
  | 54 => ⟨S4x16, .f32⟩
  | 55 => ⟨S4x1x16, .f32⟩
  | 56 => ⟨S4x256x16, .f32⟩
  | 57 => ⟨S4x256x16, .f32⟩
  | 58 => ⟨S4x256x16, .f32⟩
  | 59 => ⟨S4x256x16, .f32⟩
  | 60 => ⟨S4x1x16, .f32⟩
  | 61 => ⟨S4x16, .f32⟩
  | 62 => ⟨S4x1x16, .f32⟩
  | 63 => ⟨S4x256x16, .f32⟩
  | 64 => ⟨S4x256x16, .f32⟩
  | 65 => ⟨S_, .f32⟩
  | 66 => ⟨S4x256, .f32⟩
  | 67 => ⟨S_, .i32⟩
  | 68 => ⟨S1, .i32⟩
  | 69 => ⟨S4x512x256, .f32⟩
  | 70 => ⟨S4x256x16, .f32⟩
  | 71 => ⟨S4x256x16, .f32⟩
  | 72 => ⟨S4x1x256, .f32⟩
  | 73 => ⟨S4x256, .f32⟩
  | 74 => ⟨S4x256x1, .f32⟩
  | 75 => ⟨S4x1x16, .f32⟩
  | 76 => ⟨S4x16, .f32⟩
  | 77 => ⟨S4x1x16, .f32⟩
  | 78 => ⟨S4x256x16, .f32⟩
  | 79 => ⟨S4x256x16, .f32⟩
  | 80 => ⟨S4x256x16, .f32⟩
  | 81 => ⟨S4x256x16, .f32⟩
  | 82 => ⟨S4x1x16, .f32⟩
  | 83 => ⟨S4x16, .f32⟩
  | 84 => ⟨S4x1x16, .f32⟩
  | 85 => ⟨S4x256x16, .f32⟩
  | 86 => ⟨S4x256x16, .f32⟩
  | 87 => ⟨S_, .f32⟩
  | 88 => ⟨S4x256, .f32⟩
  | 89 => ⟨S_, .i32⟩
  | 90 => ⟨S1, .i32⟩
  | 91 => ⟨S4x512x256, .f32⟩
  | 92 => ⟨S4x256x16, .f32⟩
  | 93 => ⟨S4x256x16, .f32⟩
  | 94 => ⟨S4x1x256, .f32⟩
  | 95 => ⟨S4x256, .f32⟩
  | 96 => ⟨S4x256x1, .f32⟩
  | 97 => ⟨S4x1x16, .f32⟩
  | 98 => ⟨S4x16, .f32⟩
  | 99 => ⟨S4x1x16, .f32⟩
  | 100 => ⟨S4x256x16, .f32⟩
  | 101 => ⟨S4x256x16, .f32⟩
  | 102 => ⟨S4x256x16, .f32⟩
  | 103 => ⟨S4x256x16, .f32⟩
  | 104 => ⟨S4x1x16, .f32⟩
  | 105 => ⟨S4x16, .f32⟩
  | 106 => ⟨S4x1x16, .f32⟩
  | 107 => ⟨S4x256x16, .f32⟩
  | 108 => ⟨S4x256x16, .f32⟩
  | 109 => ⟨S_, .f32⟩
  | 110 => ⟨S4x256, .f32⟩
  | 111 => ⟨S_, .i32⟩
  | 112 => ⟨S1, .i32⟩
  | 113 => ⟨S4x512x256, .f32⟩
  | 114 => ⟨S4x256x16, .f32⟩
  | 115 => ⟨S4x256x16, .f32⟩
  | 116 => ⟨S4x1x256, .f32⟩
  | 117 => ⟨S4x256, .f32⟩
  | 118 => ⟨S4x256x1, .f32⟩
  | 119 => ⟨S4x1x16, .f32⟩
  | 120 => ⟨S4x16, .f32⟩
  | 121 => ⟨S4x1x16, .f32⟩
  | 122 => ⟨S4x256x16, .f32⟩
  | 123 => ⟨S4x256x16, .f32⟩
  | 124 => ⟨S4x256x16, .f32⟩
  | 125 => ⟨S4x256x16, .f32⟩
  | 126 => ⟨S4x1x16, .f32⟩
  | 127 => ⟨S4x16, .f32⟩
  | _ => ⟨S4x512x256, .f32⟩

abbrev hbmTy0_82 (i : Nat) : BufTy := match i % 128 with
  | 0 => ⟨S4x1x16, .f32⟩
  | 1 => ⟨S4x256x16, .f32⟩
  | 2 => ⟨S4x256x16, .f32⟩
  | 3 => ⟨S_, .f32⟩
  | 4 => ⟨S4x256, .f32⟩
  | 5 => ⟨S_, .i32⟩
  | 6 => ⟨S1, .i32⟩
  | 7 => ⟨S4x512x256, .f32⟩
  | 8 => ⟨S4x256x16, .f32⟩
  | 9 => ⟨S4x256x16, .f32⟩
  | 10 => ⟨S4x1x256, .f32⟩
  | 11 => ⟨S4x256, .f32⟩
  | 12 => ⟨S4x256x1, .f32⟩
  | 13 => ⟨S4x1x16, .f32⟩
  | 14 => ⟨S4x16, .f32⟩
  | 15 => ⟨S4x1x16, .f32⟩
  | 16 => ⟨S4x256x16, .f32⟩
  | 17 => ⟨S4x256x16, .f32⟩
  | 18 => ⟨S4x256x16, .f32⟩
  | 19 => ⟨S4x256x16, .f32⟩
  | 20 => ⟨S4x1x16, .f32⟩
  | 21 => ⟨S4x16, .f32⟩
  | 22 => ⟨S4x1x16, .f32⟩
  | 23 => ⟨S4x256x16, .f32⟩
  | 24 => ⟨S4x256x16, .f32⟩
  | 25 => ⟨S_, .f32⟩
  | 26 => ⟨S4x256, .f32⟩
  | 27 => ⟨S_, .i32⟩
  | 28 => ⟨S1, .i32⟩
  | 29 => ⟨S4x512x256, .f32⟩
  | 30 => ⟨S4x256x16, .f32⟩
  | 31 => ⟨S4x256x16, .f32⟩
  | 32 => ⟨S4x1x256, .f32⟩
  | 33 => ⟨S4x256, .f32⟩
  | 34 => ⟨S4x256x1, .f32⟩
  | 35 => ⟨S4x1x16, .f32⟩
  | 36 => ⟨S4x16, .f32⟩
  | 37 => ⟨S4x1x16, .f32⟩
  | 38 => ⟨S4x256x16, .f32⟩
  | 39 => ⟨S4x256x16, .f32⟩
  | 40 => ⟨S4x256x16, .f32⟩
  | 41 => ⟨S4x256x16, .f32⟩
  | 42 => ⟨S4x1x16, .f32⟩
  | 43 => ⟨S4x16, .f32⟩
  | 44 => ⟨S4x1x16, .f32⟩
  | 45 => ⟨S4x256x16, .f32⟩
  | 46 => ⟨S4x256x16, .f32⟩
  | 47 => ⟨S_, .f32⟩
  | 48 => ⟨S4x256, .f32⟩
  | 49 => ⟨S_, .i32⟩
  | 50 => ⟨S1, .i32⟩
  | 51 => ⟨S4x512x256, .f32⟩
  | 52 => ⟨S4x256x16, .f32⟩
  | 53 => ⟨S4x256x16, .f32⟩
  | 54 => ⟨S4x1x256, .f32⟩
  | 55 => ⟨S4x256, .f32⟩
  | 56 => ⟨S4x256x1, .f32⟩
  | 57 => ⟨S4x1x16, .f32⟩
  | 58 => ⟨S4x16, .f32⟩
  | 59 => ⟨S4x1x16, .f32⟩
  | 60 => ⟨S4x256x16, .f32⟩
  | 61 => ⟨S4x256x16, .f32⟩
  | 62 => ⟨S4x256x16, .f32⟩
  | 63 => ⟨S4x256x16, .f32⟩
  | 64 => ⟨S4x1x16, .f32⟩
  | 65 => ⟨S4x16, .f32⟩
  | 66 => ⟨S4x1x16, .f32⟩
  | 67 => ⟨S4x256x16, .f32⟩
  | 68 => ⟨S4x256x16, .f32⟩
  | 69 => ⟨S_, .f32⟩
  | 70 => ⟨S4x256, .f32⟩
  | 71 => ⟨S_, .i32⟩
  | 72 => ⟨S1, .i32⟩
  | 73 => ⟨S4x512x256, .f32⟩
  | 74 => ⟨S4x256x16, .f32⟩
  | 75 => ⟨S4x256x16, .f32⟩
  | 76 => ⟨S4x1x256, .f32⟩
  | 77 => ⟨S4x256, .f32⟩
  | 78 => ⟨S4x256x1, .f32⟩
  | 79 => ⟨S4x1x16, .f32⟩
  | 80 => ⟨S4x16, .f32⟩
  | 81 => ⟨S4x1x16, .f32⟩
  | 82 => ⟨S4x256x16, .f32⟩
  | 83 => ⟨S4x256x16, .f32⟩
  | 84 => ⟨S4x256x16, .f32⟩
  | 85 => ⟨S4x256x16, .f32⟩
  | 86 => ⟨S4x1x16, .f32⟩
  | 87 => ⟨S4x16, .f32⟩
  | 88 => ⟨S4x1x16, .f32⟩
  | 89 => ⟨S4x256x16, .f32⟩
  | 90 => ⟨S4x256x16, .f32⟩
  | 91 => ⟨S_, .f32⟩
  | 92 => ⟨S4x256, .f32⟩
  | 93 => ⟨S_, .i32⟩
  | 94 => ⟨S1, .i32⟩
  | 95 => ⟨S4x512x256, .f32⟩
  | 96 => ⟨S4x256x16, .f32⟩
  | 97 => ⟨S4x256x16, .f32⟩
  | 98 => ⟨S4x1x256, .f32⟩
  | 99 => ⟨S4x256, .f32⟩
  | 100 => ⟨S4x256x1, .f32⟩
  | 101 => ⟨S4x1x16, .f32⟩
  | 102 => ⟨S4x16, .f32⟩
  | 103 => ⟨S4x1x16, .f32⟩
  | 104 => ⟨S4x256x16, .f32⟩
  | 105 => ⟨S4x256x16, .f32⟩
  | 106 => ⟨S4x256x16, .f32⟩
  | 107 => ⟨S4x256x16, .f32⟩
  | 108 => ⟨S4x1x16, .f32⟩
  | 109 => ⟨S4x16, .f32⟩
  | 110 => ⟨S4x1x16, .f32⟩
  | 111 => ⟨S4x256x16, .f32⟩
  | 112 => ⟨S4x256x16, .f32⟩
  | 113 => ⟨S_, .f32⟩
  | 114 => ⟨S4x256, .f32⟩
  | 115 => ⟨S_, .i32⟩
  | 116 => ⟨S1, .i32⟩
  | 117 => ⟨S4x512x256, .f32⟩
  | 118 => ⟨S4x256x16, .f32⟩
  | 119 => ⟨S4x256x16, .f32⟩
  | 120 => ⟨S4x1x256, .f32⟩
  | 121 => ⟨S4x256, .f32⟩
  | 122 => ⟨S4x256x1, .f32⟩
  | 123 => ⟨S4x1x16, .f32⟩
  | 124 => ⟨S4x16, .f32⟩
  | 125 => ⟨S4x1x16, .f32⟩
  | 126 => ⟨S4x256x16, .f32⟩
  | 127 => ⟨S4x256x16, .f32⟩
  | _ => ⟨S4x512x256, .f32⟩

abbrev hbmTy0_83 (i : Nat) : BufTy := match i % 128 with
  | 0 => ⟨S4x256x16, .f32⟩
  | 1 => ⟨S4x256x16, .f32⟩
  | 2 => ⟨S4x1x16, .f32⟩
  | 3 => ⟨S4x16, .f32⟩
  | 4 => ⟨S4x1x16, .f32⟩
  | 5 => ⟨S4x256x16, .f32⟩
  | 6 => ⟨S4x256x16, .f32⟩
  | 7 => ⟨S_, .f32⟩
  | 8 => ⟨S4x256, .f32⟩
  | 9 => ⟨S_, .i32⟩
  | 10 => ⟨S1, .i32⟩
  | 11 => ⟨S4x512x256, .f32⟩
  | 12 => ⟨S4x256x16, .f32⟩
  | 13 => ⟨S4x256x16, .f32⟩
  | 14 => ⟨S4x1x256, .f32⟩
  | 15 => ⟨S4x256, .f32⟩
  | 16 => ⟨S4x256x1, .f32⟩
  | 17 => ⟨S4x1x16, .f32⟩
  | 18 => ⟨S4x16, .f32⟩
  | 19 => ⟨S4x1x16, .f32⟩
  | 20 => ⟨S4x256x16, .f32⟩
  | 21 => ⟨S4x256x16, .f32⟩
  | 22 => ⟨S4x256x16, .f32⟩
  | 23 => ⟨S4x256x16, .f32⟩
  | 24 => ⟨S4x1x16, .f32⟩
  | 25 => ⟨S4x16, .f32⟩
  | 26 => ⟨S4x1x16, .f32⟩
  | 27 => ⟨S4x256x16, .f32⟩
  | 28 => ⟨S4x256x16, .f32⟩
  | 29 => ⟨S_, .f32⟩
  | 30 => ⟨S4x256, .f32⟩
  | 31 => ⟨S_, .i32⟩
  | 32 => ⟨S1, .i32⟩
  | 33 => ⟨S4x512x256, .f32⟩
  | 34 => ⟨S4x256x16, .f32⟩
  | 35 => ⟨S4x256x16, .f32⟩
  | 36 => ⟨S4x1x256, .f32⟩
  | 37 => ⟨S4x256, .f32⟩
  | 38 => ⟨S4x256x1, .f32⟩
  | 39 => ⟨S4x1x16, .f32⟩
  | 40 => ⟨S4x16, .f32⟩
  | 41 => ⟨S4x1x16, .f32⟩
  | 42 => ⟨S4x256x16, .f32⟩
  | 43 => ⟨S4x256x16, .f32⟩
  | 44 => ⟨S4x256x16, .f32⟩
  | 45 => ⟨S4x256x16, .f32⟩
  | 46 => ⟨S4x1x16, .f32⟩
  | 47 => ⟨S4x16, .f32⟩
  | 48 => ⟨S4x1x16, .f32⟩
  | 49 => ⟨S4x256x16, .f32⟩
  | 50 => ⟨S4x256x16, .f32⟩
  | 51 => ⟨S_, .f32⟩
  | 52 => ⟨S4x256, .f32⟩
  | 53 => ⟨S_, .i32⟩
  | 54 => ⟨S1, .i32⟩
  | 55 => ⟨S4x512x256, .f32⟩
  | 56 => ⟨S4x256x16, .f32⟩
  | 57 => ⟨S4x256x16, .f32⟩
  | 58 => ⟨S4x1x256, .f32⟩
  | 59 => ⟨S4x256, .f32⟩
  | 60 => ⟨S4x256x1, .f32⟩
  | 61 => ⟨S4x1x16, .f32⟩
  | 62 => ⟨S4x16, .f32⟩
  | 63 => ⟨S4x1x16, .f32⟩
  | 64 => ⟨S4x256x16, .f32⟩
  | 65 => ⟨S4x256x16, .f32⟩
  | 66 => ⟨S4x256x16, .f32⟩
  | 67 => ⟨S4x256x16, .f32⟩
  | 68 => ⟨S4x1x16, .f32⟩
  | 69 => ⟨S4x16, .f32⟩
  | 70 => ⟨S4x1x16, .f32⟩
  | 71 => ⟨S4x256x16, .f32⟩
  | 72 => ⟨S4x256x16, .f32⟩
  | 73 => ⟨S_, .f32⟩
  | 74 => ⟨S4x256, .f32⟩
  | 75 => ⟨S_, .i32⟩
  | 76 => ⟨S1, .i32⟩
  | 77 => ⟨S4x512x256, .f32⟩
  | 78 => ⟨S4x256x16, .f32⟩
  | 79 => ⟨S4x256x16, .f32⟩
  | 80 => ⟨S4x1x256, .f32⟩
  | 81 => ⟨S4x256, .f32⟩
  | 82 => ⟨S4x256x1, .f32⟩
  | 83 => ⟨S4x1x16, .f32⟩
  | 84 => ⟨S4x16, .f32⟩
  | 85 => ⟨S4x1x16, .f32⟩
  | 86 => ⟨S4x256x16, .f32⟩
  | 87 => ⟨S4x256x16, .f32⟩
  | 88 => ⟨S4x256x16, .f32⟩
  | 89 => ⟨S4x256x16, .f32⟩
  | 90 => ⟨S4x1x16, .f32⟩
  | 91 => ⟨S4x16, .f32⟩
  | 92 => ⟨S4x1x16, .f32⟩
  | 93 => ⟨S4x256x16, .f32⟩
  | 94 => ⟨S4x256x16, .f32⟩
  | 95 => ⟨S_, .f32⟩
  | 96 => ⟨S4x256, .f32⟩
  | 97 => ⟨S_, .i32⟩
  | 98 => ⟨S1, .i32⟩
  | 99 => ⟨S4x512x256, .f32⟩
  | 100 => ⟨S4x256x16, .f32⟩
  | 101 => ⟨S4x256x16, .f32⟩
  | 102 => ⟨S4x1x256, .f32⟩
  | 103 => ⟨S4x256, .f32⟩
  | 104 => ⟨S4x256x1, .f32⟩
  | 105 => ⟨S4x1x16, .f32⟩
  | 106 => ⟨S4x16, .f32⟩
  | 107 => ⟨S4x1x16, .f32⟩
  | 108 => ⟨S4x256x16, .f32⟩
  | 109 => ⟨S4x256x16, .f32⟩
  | 110 => ⟨S4x256x16, .f32⟩
  | 111 => ⟨S4x256x16, .f32⟩
  | 112 => ⟨S4x1x16, .f32⟩
  | 113 => ⟨S4x16, .f32⟩
  | 114 => ⟨S4x1x16, .f32⟩
  | 115 => ⟨S4x256x16, .f32⟩
  | 116 => ⟨S4x256x16, .f32⟩
  | 117 => ⟨S_, .f32⟩
  | 118 => ⟨S4x256, .f32⟩
  | 119 => ⟨S_, .i32⟩
  | 120 => ⟨S1, .i32⟩
  | 121 => ⟨S4x512x256, .f32⟩
  | 122 => ⟨S4x256x16, .f32⟩
  | 123 => ⟨S4x256x16, .f32⟩
  | 124 => ⟨S4x1x256, .f32⟩
  | 125 => ⟨S4x256, .f32⟩
  | 126 => ⟨S4x256x1, .f32⟩
  | 127 => ⟨S4x1x16, .f32⟩
  | _ => ⟨S4x512x256, .f32⟩

abbrev hbmTy0_84 (i : Nat) : BufTy := match i % 128 with
  | 0 => ⟨S4x16, .f32⟩
  | 1 => ⟨S4x1x16, .f32⟩
  | 2 => ⟨S4x256x16, .f32⟩
  | 3 => ⟨S4x256x16, .f32⟩
  | 4 => ⟨S4x256x16, .f32⟩
  | 5 => ⟨S4x256x16, .f32⟩
  | 6 => ⟨S4x1x16, .f32⟩
  | 7 => ⟨S4x16, .f32⟩
  | 8 => ⟨S4x1x16, .f32⟩
  | 9 => ⟨S4x256x16, .f32⟩
  | 10 => ⟨S4x256x16, .f32⟩
  | 11 => ⟨S_, .f32⟩
  | 12 => ⟨S4x256, .f32⟩
  | 13 => ⟨S_, .i32⟩
  | 14 => ⟨S1, .i32⟩
  | 15 => ⟨S4x512x256, .f32⟩
  | 16 => ⟨S4x256x16, .f32⟩
  | 17 => ⟨S4x256x16, .f32⟩
  | 18 => ⟨S4x1x256, .f32⟩
  | 19 => ⟨S4x256, .f32⟩
  | 20 => ⟨S4x256x1, .f32⟩
  | 21 => ⟨S4x1x16, .f32⟩
  | 22 => ⟨S4x16, .f32⟩
  | 23 => ⟨S4x1x16, .f32⟩
  | 24 => ⟨S4x256x16, .f32⟩
  | 25 => ⟨S4x256x16, .f32⟩
  | 26 => ⟨S4x256x16, .f32⟩
  | 27 => ⟨S4x256x16, .f32⟩
  | 28 => ⟨S4x1x16, .f32⟩
  | 29 => ⟨S4x16, .f32⟩
  | 30 => ⟨S4x1x16, .f32⟩
  | 31 => ⟨S4x256x16, .f32⟩
  | 32 => ⟨S4x256x16, .f32⟩
  | 33 => ⟨S_, .f32⟩
  | 34 => ⟨S4x256, .f32⟩
  | 35 => ⟨S_, .i32⟩
  | 36 => ⟨S1, .i32⟩
  | 37 => ⟨S4x512x256, .f32⟩
  | 38 => ⟨S4x256x16, .f32⟩
  | 39 => ⟨S4x256x16, .f32⟩
  | 40 => ⟨S4x1x256, .f32⟩
  | 41 => ⟨S4x256, .f32⟩
  | 42 => ⟨S4x256x1, .f32⟩
  | 43 => ⟨S4x1x16, .f32⟩
  | 44 => ⟨S4x16, .f32⟩
  | 45 => ⟨S4x1x16, .f32⟩
  | 46 => ⟨S4x256x16, .f32⟩
  | 47 => ⟨S4x256x16, .f32⟩
  | 48 => ⟨S4x256x16, .f32⟩
  | 49 => ⟨S4x256x16, .f32⟩
  | 50 => ⟨S4x1x16, .f32⟩
  | 51 => ⟨S4x16, .f32⟩
  | 52 => ⟨S4x1x16, .f32⟩
  | 53 => ⟨S4x256x16, .f32⟩
  | 54 => ⟨S4x256x16, .f32⟩
  | 55 => ⟨S_, .f32⟩
  | 56 => ⟨S4x256, .f32⟩
  | 57 => ⟨S_, .i32⟩
  | 58 => ⟨S1, .i32⟩
  | 59 => ⟨S4x512x256, .f32⟩
  | 60 => ⟨S4x256x16, .f32⟩
  | 61 => ⟨S4x256x16, .f32⟩
  | 62 => ⟨S4x1x256, .f32⟩
  | 63 => ⟨S4x256, .f32⟩
  | 64 => ⟨S4x256x1, .f32⟩
  | 65 => ⟨S4x1x16, .f32⟩
  | 66 => ⟨S4x16, .f32⟩
  | 67 => ⟨S4x1x16, .f32⟩
  | 68 => ⟨S4x256x16, .f32⟩
  | 69 => ⟨S4x256x16, .f32⟩
  | 70 => ⟨S4x256x16, .f32⟩
  | 71 => ⟨S4x256x16, .f32⟩
  | 72 => ⟨S4x1x16, .f32⟩
  | 73 => ⟨S4x16, .f32⟩
  | 74 => ⟨S4x1x16, .f32⟩
  | 75 => ⟨S4x256x16, .f32⟩
  | 76 => ⟨S4x256x16, .f32⟩
  | 77 => ⟨S_, .f32⟩
  | 78 => ⟨S4x256, .f32⟩
  | 79 => ⟨S_, .i32⟩
  | 80 => ⟨S1, .i32⟩
  | 81 => ⟨S4x512x256, .f32⟩
  | 82 => ⟨S4x256x16, .f32⟩
  | 83 => ⟨S4x256x16, .f32⟩
  | 84 => ⟨S4x1x256, .f32⟩
  | 85 => ⟨S4x256, .f32⟩
  | 86 => ⟨S4x256x1, .f32⟩
  | 87 => ⟨S4x1x16, .f32⟩
  | 88 => ⟨S4x16, .f32⟩
  | 89 => ⟨S4x1x16, .f32⟩
  | 90 => ⟨S4x256x16, .f32⟩
  | 91 => ⟨S4x256x16, .f32⟩
  | 92 => ⟨S4x256x16, .f32⟩
  | 93 => ⟨S4x256x16, .f32⟩
  | 94 => ⟨S4x1x16, .f32⟩
  | 95 => ⟨S4x16, .f32⟩
  | 96 => ⟨S4x1x16, .f32⟩
  | 97 => ⟨S4x256x16, .f32⟩
  | 98 => ⟨S4x256x16, .f32⟩
  | 99 => ⟨S_, .f32⟩
  | 100 => ⟨S4x256, .f32⟩
  | 101 => ⟨S_, .i32⟩
  | 102 => ⟨S1, .i32⟩
  | 103 => ⟨S4x512x256, .f32⟩
  | 104 => ⟨S4x256x16, .f32⟩
  | 105 => ⟨S4x256x16, .f32⟩
  | 106 => ⟨S4x1x256, .f32⟩
  | 107 => ⟨S4x256, .f32⟩
  | 108 => ⟨S4x256x1, .f32⟩
  | 109 => ⟨S4x1x16, .f32⟩
  | 110 => ⟨S4x16, .f32⟩
  | 111 => ⟨S4x1x16, .f32⟩
  | 112 => ⟨S4x256x16, .f32⟩
  | 113 => ⟨S4x256x16, .f32⟩
  | 114 => ⟨S4x256x16, .f32⟩
  | 115 => ⟨S4x256x16, .f32⟩
  | 116 => ⟨S4x1x16, .f32⟩
  | 117 => ⟨S4x16, .f32⟩
  | 118 => ⟨S4x1x16, .f32⟩
  | 119 => ⟨S4x256x16, .f32⟩
  | 120 => ⟨S4x256x16, .f32⟩
  | 121 => ⟨S_, .f32⟩
  | 122 => ⟨S4x256, .f32⟩
  | 123 => ⟨S_, .i32⟩
  | 124 => ⟨S1, .i32⟩
  | 125 => ⟨S4x512x256, .f32⟩
  | 126 => ⟨S4x256x16, .f32⟩
  | 127 => ⟨S4x256x16, .f32⟩
  | _ => ⟨S4x512x256, .f32⟩

abbrev hbmTy0_85 (i : Nat) : BufTy := match i % 128 with
  | 0 => ⟨S4x1x256, .f32⟩
  | 1 => ⟨S4x256, .f32⟩
  | 2 => ⟨S4x256x1, .f32⟩
  | 3 => ⟨S4x1x16, .f32⟩
  | 4 => ⟨S4x16, .f32⟩
  | 5 => ⟨S4x1x16, .f32⟩
  | 6 => ⟨S4x256x16, .f32⟩
  | 7 => ⟨S4x256x16, .f32⟩
  | 8 => ⟨S4x256x16, .f32⟩
  | 9 => ⟨S4x256x16, .f32⟩
  | 10 => ⟨S4x1x16, .f32⟩
  | 11 => ⟨S4x16, .f32⟩
  | 12 => ⟨S4x1x16, .f32⟩
  | 13 => ⟨S4x256x16, .f32⟩
  | 14 => ⟨S4x256x16, .f32⟩
  | 15 => ⟨S_, .f32⟩
  | 16 => ⟨S4x256, .f32⟩
  | 17 => ⟨S_, .i32⟩
  | 18 => ⟨S1, .i32⟩
  | 19 => ⟨S4x512x256, .f32⟩
  | 20 => ⟨S4x256x16, .f32⟩
  | 21 => ⟨S4x256x16, .f32⟩
  | 22 => ⟨S4x1x256, .f32⟩
  | 23 => ⟨S4x256, .f32⟩
  | 24 => ⟨S4x256x1, .f32⟩
  | 25 => ⟨S4x1x16, .f32⟩
  | 26 => ⟨S4x16, .f32⟩
  | 27 => ⟨S4x1x16, .f32⟩
  | 28 => ⟨S4x256x16, .f32⟩
  | 29 => ⟨S4x256x16, .f32⟩
  | 30 => ⟨S4x256x16, .f32⟩
  | 31 => ⟨S4x256x16, .f32⟩
  | 32 => ⟨S4x1x16, .f32⟩
  | 33 => ⟨S4x16, .f32⟩
  | 34 => ⟨S4x1x16, .f32⟩
  | 35 => ⟨S4x256x16, .f32⟩
  | 36 => ⟨S4x256x16, .f32⟩
  | 37 => ⟨S_, .f32⟩
  | 38 => ⟨S4x256, .f32⟩
  | 39 => ⟨S_, .i32⟩
  | 40 => ⟨S1, .i32⟩
  | 41 => ⟨S4x512x256, .f32⟩
  | 42 => ⟨S4x256x16, .f32⟩
  | 43 => ⟨S4x256x16, .f32⟩
  | 44 => ⟨S4x1x256, .f32⟩
  | 45 => ⟨S4x256, .f32⟩
  | 46 => ⟨S4x256x1, .f32⟩
  | 47 => ⟨S4x1x16, .f32⟩
  | 48 => ⟨S4x16, .f32⟩
  | 49 => ⟨S4x1x16, .f32⟩
  | 50 => ⟨S4x256x16, .f32⟩
  | 51 => ⟨S4x256x16, .f32⟩
  | 52 => ⟨S4x256x16, .f32⟩
  | 53 => ⟨S4x256x16, .f32⟩
  | 54 => ⟨S4x1x16, .f32⟩
  | 55 => ⟨S4x16, .f32⟩
  | 56 => ⟨S4x1x16, .f32⟩
  | 57 => ⟨S4x256x16, .f32⟩
  | 58 => ⟨S4x256x16, .f32⟩
  | 59 => ⟨S_, .f32⟩
  | 60 => ⟨S4x256, .f32⟩
  | 61 => ⟨S_, .i32⟩
  | 62 => ⟨S1, .i32⟩
  | 63 => ⟨S4x512x256, .f32⟩
  | 64 => ⟨S4x256x16, .f32⟩
  | 65 => ⟨S4x256x16, .f32⟩
  | 66 => ⟨S4x1x256, .f32⟩
  | 67 => ⟨S4x256, .f32⟩
  | 68 => ⟨S4x256x1, .f32⟩
  | 69 => ⟨S4x1x16, .f32⟩
  | 70 => ⟨S4x16, .f32⟩
  | 71 => ⟨S4x1x16, .f32⟩
  | 72 => ⟨S4x256x16, .f32⟩
  | 73 => ⟨S4x256x16, .f32⟩
  | 74 => ⟨S4x256x16, .f32⟩
  | 75 => ⟨S4x256x16, .f32⟩
  | 76 => ⟨S4x1x16, .f32⟩
  | 77 => ⟨S4x16, .f32⟩
  | 78 => ⟨S4x1x16, .f32⟩
  | 79 => ⟨S4x256x16, .f32⟩
  | 80 => ⟨S4x256x16, .f32⟩
  | 81 => ⟨S_, .f32⟩
  | 82 => ⟨S4x256, .f32⟩
  | 83 => ⟨S_, .i32⟩
  | 84 => ⟨S1, .i32⟩
  | 85 => ⟨S4x512x256, .f32⟩
  | 86 => ⟨S4x256x16, .f32⟩
  | 87 => ⟨S4x256x16, .f32⟩
  | 88 => ⟨S4x1x256, .f32⟩
  | 89 => ⟨S4x256, .f32⟩
  | 90 => ⟨S4x256x1, .f32⟩
  | 91 => ⟨S4x1x16, .f32⟩
  | 92 => ⟨S4x16, .f32⟩
  | 93 => ⟨S4x1x16, .f32⟩
  | 94 => ⟨S4x256x16, .f32⟩
  | 95 => ⟨S4x256x16, .f32⟩
  | 96 => ⟨S4x256x16, .f32⟩
  | 97 => ⟨S4x256x16, .f32⟩
  | 98 => ⟨S4x1x16, .f32⟩
  | 99 => ⟨S4x16, .f32⟩
  | 100 => ⟨S4x1x16, .f32⟩
  | 101 => ⟨S4x256x16, .f32⟩
  | 102 => ⟨S4x256x16, .f32⟩
  | 103 => ⟨S_, .f32⟩
  | 104 => ⟨S4x256, .f32⟩
  | 105 => ⟨S_, .i32⟩
  | 106 => ⟨S1, .i32⟩
  | 107 => ⟨S4x512x256, .f32⟩
  | 108 => ⟨S4x256x16, .f32⟩
  | 109 => ⟨S4x256x16, .f32⟩
  | 110 => ⟨S4x1x256, .f32⟩
  | 111 => ⟨S4x256, .f32⟩
  | 112 => ⟨S4x256x1, .f32⟩
  | 113 => ⟨S4x1x16, .f32⟩
  | 114 => ⟨S4x16, .f32⟩
  | 115 => ⟨S4x1x16, .f32⟩
  | 116 => ⟨S4x256x16, .f32⟩
  | 117 => ⟨S4x256x16, .f32⟩
  | 118 => ⟨S4x256x16, .f32⟩
  | 119 => ⟨S4x256x16, .f32⟩
  | 120 => ⟨S4x1x16, .f32⟩
  | 121 => ⟨S4x16, .f32⟩
  | 122 => ⟨S4x1x16, .f32⟩
  | 123 => ⟨S4x256x16, .f32⟩
  | 124 => ⟨S4x256x16, .f32⟩
  | 125 => ⟨S_, .f32⟩
  | 126 => ⟨S4x256, .f32⟩
  | 127 => ⟨S_, .i32⟩
  | _ => ⟨S4x512x256, .f32⟩

abbrev hbmTy0_86 (i : Nat) : BufTy := match i % 128 with
  | 0 => ⟨S1, .i32⟩
  | 1 => ⟨S4x512x256, .f32⟩
  | 2 => ⟨S4x256x16, .f32⟩
  | 3 => ⟨S4x256x16, .f32⟩
  | 4 => ⟨S4x1x256, .f32⟩
  | 5 => ⟨S4x256, .f32⟩
  | 6 => ⟨S4x256x1, .f32⟩
  | 7 => ⟨S4x1x16, .f32⟩
  | 8 => ⟨S4x16, .f32⟩
  | 9 => ⟨S4x1x16, .f32⟩
  | 10 => ⟨S4x256x16, .f32⟩
  | 11 => ⟨S4x256x16, .f32⟩
  | 12 => ⟨S4x256x16, .f32⟩
  | 13 => ⟨S4x256x16, .f32⟩
  | 14 => ⟨S4x1x16, .f32⟩
  | 15 => ⟨S4x16, .f32⟩
  | 16 => ⟨S4x1x16, .f32⟩
  | 17 => ⟨S4x256x16, .f32⟩
  | 18 => ⟨S4x256x16, .f32⟩
  | 19 => ⟨S_, .f32⟩
  | 20 => ⟨S4x256, .f32⟩
  | 21 => ⟨S_, .i32⟩
  | 22 => ⟨S1, .i32⟩
  | 23 => ⟨S4x512x256, .f32⟩
  | 24 => ⟨S4x256x16, .f32⟩
  | 25 => ⟨S4x256x16, .f32⟩
  | 26 => ⟨S4x1x256, .f32⟩
  | 27 => ⟨S4x256, .f32⟩
  | 28 => ⟨S4x256x1, .f32⟩
  | 29 => ⟨S4x1x16, .f32⟩
  | 30 => ⟨S4x16, .f32⟩
  | 31 => ⟨S4x1x16, .f32⟩
  | 32 => ⟨S4x256x16, .f32⟩
  | 33 => ⟨S4x256x16, .f32⟩
  | 34 => ⟨S4x256x16, .f32⟩
  | 35 => ⟨S4x256x16, .f32⟩
  | 36 => ⟨S4x1x16, .f32⟩
  | 37 => ⟨S4x16, .f32⟩
  | 38 => ⟨S4x1x16, .f32⟩
  | 39 => ⟨S4x256x16, .f32⟩
  | 40 => ⟨S4x256x16, .f32⟩
  | 41 => ⟨S_, .f32⟩
  | 42 => ⟨S4x256, .f32⟩
  | 43 => ⟨S_, .i32⟩
  | 44 => ⟨S1, .i32⟩
  | 45 => ⟨S4x512x256, .f32⟩
  | 46 => ⟨S4x256x16, .f32⟩
  | 47 => ⟨S4x256x16, .f32⟩
  | 48 => ⟨S4x1x256, .f32⟩
  | 49 => ⟨S4x256, .f32⟩
  | 50 => ⟨S4x256x1, .f32⟩
  | 51 => ⟨S4x1x16, .f32⟩
  | 52 => ⟨S4x16, .f32⟩
  | 53 => ⟨S4x1x16, .f32⟩
  | 54 => ⟨S4x256x16, .f32⟩
  | 55 => ⟨S4x256x16, .f32⟩
  | 56 => ⟨S4x256x16, .f32⟩
  | 57 => ⟨S4x256x16, .f32⟩
  | 58 => ⟨S4x1x16, .f32⟩
  | 59 => ⟨S4x16, .f32⟩
  | 60 => ⟨S4x1x16, .f32⟩
  | 61 => ⟨S4x256x16, .f32⟩
  | 62 => ⟨S4x256x16, .f32⟩
  | 63 => ⟨S_, .f32⟩
  | 64 => ⟨S4x256, .f32⟩
  | 65 => ⟨S_, .i32⟩
  | 66 => ⟨S1, .i32⟩
  | 67 => ⟨S4x512x256, .f32⟩
  | 68 => ⟨S4x256x16, .f32⟩
  | 69 => ⟨S4x256x16, .f32⟩
  | 70 => ⟨S4x1x256, .f32⟩
  | 71 => ⟨S4x256, .f32⟩
  | 72 => ⟨S4x256x1, .f32⟩
  | 73 => ⟨S4x1x16, .f32⟩
  | 74 => ⟨S4x16, .f32⟩
  | 75 => ⟨S4x1x16, .f32⟩
  | 76 => ⟨S4x256x16, .f32⟩
  | 77 => ⟨S4x256x16, .f32⟩
  | 78 => ⟨S4x256x16, .f32⟩
  | 79 => ⟨S4x256x16, .f32⟩
  | 80 => ⟨S4x1x16, .f32⟩
  | 81 => ⟨S4x16, .f32⟩
  | 82 => ⟨S4x1x16, .f32⟩
  | 83 => ⟨S4x256x16, .f32⟩
  | 84 => ⟨S4x256x16, .f32⟩
  | 85 => ⟨S_, .f32⟩
  | 86 => ⟨S4x256, .f32⟩
  | 87 => ⟨S_, .i32⟩
  | 88 => ⟨S1, .i32⟩
  | 89 => ⟨S4x512x256, .f32⟩
  | 90 => ⟨S4x256x16, .f32⟩
  | 91 => ⟨S4x256x16, .f32⟩
  | 92 => ⟨S4x1x256, .f32⟩
  | 93 => ⟨S4x256, .f32⟩
  | 94 => ⟨S4x256x1, .f32⟩
  | 95 => ⟨S4x1x16, .f32⟩
  | 96 => ⟨S4x16, .f32⟩
  | 97 => ⟨S4x1x16, .f32⟩
  | 98 => ⟨S4x256x16, .f32⟩
  | 99 => ⟨S4x256x16, .f32⟩
  | 100 => ⟨S4x256x16, .f32⟩
  | 101 => ⟨S4x256x16, .f32⟩
  | 102 => ⟨S4x1x16, .f32⟩
  | 103 => ⟨S4x16, .f32⟩
  | 104 => ⟨S4x1x16, .f32⟩
  | 105 => ⟨S4x256x16, .f32⟩
  | 106 => ⟨S4x256x16, .f32⟩
  | 107 => ⟨S_, .f32⟩
  | 108 => ⟨S4x256, .f32⟩
  | 109 => ⟨S_, .i32⟩
  | 110 => ⟨S1, .i32⟩
  | 111 => ⟨S4x512x256, .f32⟩
  | 112 => ⟨S4x256x16, .f32⟩
  | 113 => ⟨S4x256x16, .f32⟩
  | 114 => ⟨S4x1x256, .f32⟩
  | 115 => ⟨S4x256, .f32⟩
  | 116 => ⟨S4x256x1, .f32⟩
  | 117 => ⟨S4x1x16, .f32⟩
  | 118 => ⟨S4x16, .f32⟩
  | 119 => ⟨S4x1x16, .f32⟩
  | 120 => ⟨S4x256x16, .f32⟩
  | 121 => ⟨S4x256x16, .f32⟩
  | 122 => ⟨S4x256x16, .f32⟩
  | 123 => ⟨S4x256x16, .f32⟩
  | 124 => ⟨S4x1x16, .f32⟩
  | 125 => ⟨S4x16, .f32⟩
  | 126 => ⟨S4x1x16, .f32⟩
  | 127 => ⟨S4x256x16, .f32⟩
  | _ => ⟨S4x512x256, .f32⟩

abbrev hbmTy0_87 (i : Nat) : BufTy := match i % 128 with
  | 0 => ⟨S4x256x16, .f32⟩
  | 1 => ⟨S_, .f32⟩
  | 2 => ⟨S4x256, .f32⟩
  | 3 => ⟨S_, .i32⟩
  | 4 => ⟨S1, .i32⟩
  | 5 => ⟨S4x512x256, .f32⟩
  | 6 => ⟨S4x256x16, .f32⟩
  | 7 => ⟨S4x256x16, .f32⟩
  | 8 => ⟨S4x1x256, .f32⟩
  | 9 => ⟨S4x256, .f32⟩
  | 10 => ⟨S4x256x1, .f32⟩
  | 11 => ⟨S4x1x16, .f32⟩
  | 12 => ⟨S4x16, .f32⟩
  | 13 => ⟨S4x1x16, .f32⟩
  | 14 => ⟨S4x256x16, .f32⟩
  | 15 => ⟨S4x256x16, .f32⟩
  | 16 => ⟨S4x256x16, .f32⟩
  | 17 => ⟨S4x256x16, .f32⟩
  | 18 => ⟨S4x1x16, .f32⟩
  | 19 => ⟨S4x16, .f32⟩
  | 20 => ⟨S4x1x16, .f32⟩
  | 21 => ⟨S4x256x16, .f32⟩
  | 22 => ⟨S4x256x16, .f32⟩
  | 23 => ⟨S_, .f32⟩
  | 24 => ⟨S4x256, .f32⟩
  | 25 => ⟨S_, .i32⟩
  | 26 => ⟨S1, .i32⟩
  | 27 => ⟨S4x512x256, .f32⟩
  | 28 => ⟨S4x256x16, .f32⟩
  | 29 => ⟨S4x256x16, .f32⟩
  | 30 => ⟨S4x1x256, .f32⟩
  | 31 => ⟨S4x256, .f32⟩
  | 32 => ⟨S4x256x1, .f32⟩
  | 33 => ⟨S4x1x16, .f32⟩
  | 34 => ⟨S4x16, .f32⟩
  | 35 => ⟨S4x1x16, .f32⟩
  | 36 => ⟨S4x256x16, .f32⟩
  | 37 => ⟨S4x256x16, .f32⟩
  | 38 => ⟨S4x256x16, .f32⟩
  | 39 => ⟨S4x256x16, .f32⟩
  | 40 => ⟨S4x1x16, .f32⟩
  | 41 => ⟨S4x16, .f32⟩
  | 42 => ⟨S4x1x16, .f32⟩
  | 43 => ⟨S4x256x16, .f32⟩
  | 44 => ⟨S4x256x16, .f32⟩
  | 45 => ⟨S_, .f32⟩
  | 46 => ⟨S4x256, .f32⟩
  | 47 => ⟨S_, .i32⟩
  | 48 => ⟨S1, .i32⟩
  | 49 => ⟨S4x512x256, .f32⟩
  | 50 => ⟨S4x256x16, .f32⟩
  | 51 => ⟨S4x256x16, .f32⟩
  | 52 => ⟨S4x1x256, .f32⟩
  | 53 => ⟨S4x256, .f32⟩
  | 54 => ⟨S4x256x1, .f32⟩
  | 55 => ⟨S4x1x16, .f32⟩
  | 56 => ⟨S4x16, .f32⟩
  | 57 => ⟨S4x1x16, .f32⟩
  | 58 => ⟨S4x256x16, .f32⟩
  | 59 => ⟨S4x256x16, .f32⟩
  | 60 => ⟨S4x256x16, .f32⟩
  | 61 => ⟨S4x256x16, .f32⟩
  | 62 => ⟨S4x1x16, .f32⟩
  | 63 => ⟨S4x16, .f32⟩
  | 64 => ⟨S4x1x16, .f32⟩
  | 65 => ⟨S4x256x16, .f32⟩
  | 66 => ⟨S4x256x16, .f32⟩
  | 67 => ⟨S_, .f32⟩
  | 68 => ⟨S4x256, .f32⟩
  | 69 => ⟨S_, .i32⟩
  | 70 => ⟨S1, .i32⟩
  | 71 => ⟨S4x512x256, .f32⟩
  | 72 => ⟨S4x256x16, .f32⟩
  | 73 => ⟨S4x256x16, .f32⟩
  | 74 => ⟨S4x1x256, .f32⟩
  | 75 => ⟨S4x256, .f32⟩
  | 76 => ⟨S4x256x1, .f32⟩
  | 77 => ⟨S4x1x16, .f32⟩
  | 78 => ⟨S4x16, .f32⟩
  | 79 => ⟨S4x1x16, .f32⟩
  | 80 => ⟨S4x256x16, .f32⟩
  | 81 => ⟨S4x256x16, .f32⟩
  | 82 => ⟨S4x256x16, .f32⟩
  | 83 => ⟨S4x256x16, .f32⟩
  | 84 => ⟨S4x1x16, .f32⟩
  | 85 => ⟨S4x16, .f32⟩
  | 86 => ⟨S4x1x16, .f32⟩
  | 87 => ⟨S4x256x16, .f32⟩
  | 88 => ⟨S4x256x16, .f32⟩
  | 89 => ⟨S_, .f32⟩
  | 90 => ⟨S4x256, .f32⟩
  | 91 => ⟨S_, .i32⟩
  | 92 => ⟨S1, .i32⟩
  | 93 => ⟨S4x512x256, .f32⟩
  | 94 => ⟨S4x256x16, .f32⟩
  | 95 => ⟨S4x256x16, .f32⟩
  | 96 => ⟨S4x1x256, .f32⟩
  | 97 => ⟨S4x256, .f32⟩
  | 98 => ⟨S4x256x1, .f32⟩
  | 99 => ⟨S4x1x16, .f32⟩
  | 100 => ⟨S4x16, .f32⟩
  | 101 => ⟨S4x1x16, .f32⟩
  | 102 => ⟨S4x256x16, .f32⟩
  | 103 => ⟨S4x256x16, .f32⟩
  | 104 => ⟨S4x256x16, .f32⟩
  | 105 => ⟨S4x256x16, .f32⟩
  | 106 => ⟨S4x1x16, .f32⟩
  | 107 => ⟨S4x16, .f32⟩
  | 108 => ⟨S4x1x16, .f32⟩
  | 109 => ⟨S4x256x16, .f32⟩
  | 110 => ⟨S4x256x16, .f32⟩
  | 111 => ⟨S_, .f32⟩
  | 112 => ⟨S4x256, .f32⟩
  | 113 => ⟨S_, .i32⟩
  | 114 => ⟨S1, .i32⟩
  | 115 => ⟨S4x512x256, .f32⟩
  | 116 => ⟨S4x256x16, .f32⟩
  | 117 => ⟨S4x256x16, .f32⟩
  | 118 => ⟨S4x1x256, .f32⟩
  | 119 => ⟨S4x256, .f32⟩
  | 120 => ⟨S4x256x1, .f32⟩
  | 121 => ⟨S4x1x16, .f32⟩
  | 122 => ⟨S4x16, .f32⟩
  | 123 => ⟨S4x1x16, .f32⟩
  | 124 => ⟨S4x256x16, .f32⟩
  | 125 => ⟨S4x256x16, .f32⟩
  | 126 => ⟨S4x256x16, .f32⟩
  | 127 => ⟨S4x256x16, .f32⟩
  | _ => ⟨S4x512x256, .f32⟩

abbrev hbmTy0_88 (i : Nat) : BufTy := match i % 128 with
  | 0 => ⟨S4x1x16, .f32⟩
  | 1 => ⟨S4x16, .f32⟩
  | 2 => ⟨S4x1x16, .f32⟩
  | 3 => ⟨S4x256x16, .f32⟩
  | 4 => ⟨S4x256x16, .f32⟩
  | 5 => ⟨S_, .f32⟩
  | 6 => ⟨S4x256, .f32⟩
  | 7 => ⟨S_, .i32⟩
  | 8 => ⟨S1, .i32⟩
  | 9 => ⟨S4x512x256, .f32⟩
  | _ => ⟨S4x512x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | 36 => hbmTy0_36 i
  | 37 => hbmTy0_37 i
  | 38 => hbmTy0_38 i
  | 39 => hbmTy0_39 i
  | 40 => hbmTy0_40 i
  | 41 => hbmTy0_41 i
  | 42 => hbmTy0_42 i
  | 43 => hbmTy0_43 i
  | 44 => hbmTy0_44 i
  | 45 => hbmTy0_45 i
  | 46 => hbmTy0_46 i
  | 47 => hbmTy0_47 i
  | 48 => hbmTy0_48 i
  | 49 => hbmTy0_49 i
  | 50 => hbmTy0_50 i
  | 51 => hbmTy0_51 i
  | 52 => hbmTy0_52 i
  | 53 => hbmTy0_53 i
  | 54 => hbmTy0_54 i
  | 55 => hbmTy0_55 i
  | 56 => hbmTy0_56 i
  | 57 => hbmTy0_57 i
  | 58 => hbmTy0_58 i
  | 59 => hbmTy0_59 i
  | 60 => hbmTy0_60 i
  | 61 => hbmTy0_61 i
  | 62 => hbmTy0_62 i
  | 63 => hbmTy0_63 i
  | 64 => hbmTy0_64 i
  | 65 => hbmTy0_65 i
  | 66 => hbmTy0_66 i
  | 67 => hbmTy0_67 i
  | 68 => hbmTy0_68 i
  | 69 => hbmTy0_69 i
  | 70 => hbmTy0_70 i
  | 71 => hbmTy0_71 i
  | 72 => hbmTy0_72 i
  | 73 => hbmTy0_73 i
  | 74 => hbmTy0_74 i
  | 75 => hbmTy0_75 i
  | 76 => hbmTy0_76 i
  | 77 => hbmTy0_77 i
  | 78 => hbmTy0_78 i
  | 79 => hbmTy0_79 i
  | 80 => hbmTy0_80 i
  | 81 => hbmTy0_81 i
  | 82 => hbmTy0_82 i
  | 83 => hbmTy0_83 i
  | 84 => hbmTy0_84 i
  | 85 => hbmTy0_85 i
  | 86 => hbmTy0_86 i
  | 87 => hbmTy0_87 i
  | 88 => hbmTy0_88 i
  | _ => ⟨S4x512x256, .f32⟩

abbrev bufTy : (tb : Table) → Fin (tcTables nBuf tb) → BufTy
  | .hbm, ⟨i, _⟩ => hbmTy i
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_c_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_4 : Ref sig .tc := ⟨.hbm, 71, rfl⟩
abbrev main_v61 : Ref sig .tc := ⟨.hbm, 72, rfl⟩
abbrev main_c_5 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_6 : Ref sig .tc := ⟨.hbm, 93, rfl⟩
abbrev main_v81 : Ref sig .tc := ⟨.hbm, 94, rfl⟩
abbrev main_c_7 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_cst_8 : Ref sig .tc := ⟨.hbm, 115, rfl⟩
abbrev main_v101 : Ref sig .tc := ⟨.hbm, 116, rfl⟩
abbrev main_c_9 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_cst_10 : Ref sig .tc := ⟨.hbm, 137, rfl⟩
abbrev main_v121 : Ref sig .tc := ⟨.hbm, 138, rfl⟩
abbrev main_c_11 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_cst_12 : Ref sig .tc := ⟨.hbm, 159, rfl⟩
abbrev main_v141 : Ref sig .tc := ⟨.hbm, 160, rfl⟩
abbrev main_c_13 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_cst_14 : Ref sig .tc := ⟨.hbm, 181, rfl⟩
abbrev main_v161 : Ref sig .tc := ⟨.hbm, 182, rfl⟩
abbrev main_c_15 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_cst_16 : Ref sig .tc := ⟨.hbm, 203, rfl⟩
abbrev main_v181 : Ref sig .tc := ⟨.hbm, 204, rfl⟩
abbrev main_c_17 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_cst_18 : Ref sig .tc := ⟨.hbm, 225, rfl⟩
abbrev main_v201 : Ref sig .tc := ⟨.hbm, 226, rfl⟩
abbrev main_c_19 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_cst_20 : Ref sig .tc := ⟨.hbm, 247, rfl⟩
abbrev main_v221 : Ref sig .tc := ⟨.hbm, 248, rfl⟩
abbrev main_c_21 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_cst_22 : Ref sig .tc := ⟨.hbm, 269, rfl⟩
abbrev main_v241 : Ref sig .tc := ⟨.hbm, 270, rfl⟩
abbrev main_c_23 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_cst_24 : Ref sig .tc := ⟨.hbm, 291, rfl⟩
abbrev main_v261 : Ref sig .tc := ⟨.hbm, 292, rfl⟩
abbrev main_c_25 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_cst_26 : Ref sig .tc := ⟨.hbm, 313, rfl⟩
abbrev main_v281 : Ref sig .tc := ⟨.hbm, 314, rfl⟩
abbrev main_c_27 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_cst_28 : Ref sig .tc := ⟨.hbm, 335, rfl⟩
abbrev main_v301 : Ref sig .tc := ⟨.hbm, 336, rfl⟩
abbrev main_c_29 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩
abbrev main_v320 : Ref sig .tc := ⟨.hbm, 356, rfl⟩
abbrev main_cst_30 : Ref sig .tc := ⟨.hbm, 357, rfl⟩
abbrev main_v321 : Ref sig .tc := ⟨.hbm, 358, rfl⟩
abbrev main_c_31 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_v327 : Ref sig .tc := ⟨.hbm, 365, rfl⟩
abbrev main_v328 : Ref sig .tc := ⟨.hbm, 366, rfl⟩
abbrev main_v329 : Ref sig .tc := ⟨.hbm, 367, rfl⟩
abbrev main_v330 : Ref sig .tc := ⟨.hbm, 368, rfl⟩
abbrev main_v331 : Ref sig .tc := ⟨.hbm, 369, rfl⟩
abbrev main_v332 : Ref sig .tc := ⟨.hbm, 370, rfl⟩
abbrev main_v333 : Ref sig .tc := ⟨.hbm, 371, rfl⟩
abbrev main_v334 : Ref sig .tc := ⟨.hbm, 372, rfl⟩
abbrev main_v335 : Ref sig .tc := ⟨.hbm, 373, rfl⟩
abbrev main_v336 : Ref sig .tc := ⟨.hbm, 374, rfl⟩
abbrev main_v337 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_cst_32 : Ref sig .tc := ⟨.hbm, 379, rfl⟩
abbrev main_v341 : Ref sig .tc := ⟨.hbm, 380, rfl⟩
abbrev main_c_33 : Ref sig .tc := ⟨.hbm, 381, rfl⟩
abbrev main_v342 : Ref sig .tc := ⟨.hbm, 382, rfl⟩
abbrev main_v343 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_v349 : Ref sig .tc := ⟨.hbm, 389, rfl⟩
abbrev main_v350 : Ref sig .tc := ⟨.hbm, 390, rfl⟩
abbrev main_v351 : Ref sig .tc := ⟨.hbm, 391, rfl⟩
abbrev main_v352 : Ref sig .tc := ⟨.hbm, 392, rfl⟩
abbrev main_v353 : Ref sig .tc := ⟨.hbm, 393, rfl⟩
abbrev main_v354 : Ref sig .tc := ⟨.hbm, 394, rfl⟩
abbrev main_v355 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_v359 : Ref sig .tc := ⟨.hbm, 399, rfl⟩
abbrev main_v360 : Ref sig .tc := ⟨.hbm, 400, rfl⟩
abbrev main_cst_34 : Ref sig .tc := ⟨.hbm, 401, rfl⟩
abbrev main_v361 : Ref sig .tc := ⟨.hbm, 402, rfl⟩
abbrev main_c_35 : Ref sig .tc := ⟨.hbm, 403, rfl⟩
abbrev main_v362 : Ref sig .tc := ⟨.hbm, 404, rfl⟩
abbrev main_v363 : Ref sig .tc := ⟨.hbm, 405, rfl⟩
abbrev main_v364 : Ref sig .tc := ⟨.hbm, 406, rfl⟩
abbrev main_v365 : Ref sig .tc := ⟨.hbm, 407, rfl⟩
abbrev main_v366 : Ref sig .tc := ⟨.hbm, 408, rfl⟩
abbrev main_v367 : Ref sig .tc := ⟨.hbm, 409, rfl⟩
abbrev main_v368 : Ref sig .tc := ⟨.hbm, 410, rfl⟩
abbrev main_v369 : Ref sig .tc := ⟨.hbm, 411, rfl⟩
abbrev main_v370 : Ref sig .tc := ⟨.hbm, 412, rfl⟩
abbrev main_v371 : Ref sig .tc := ⟨.hbm, 413, rfl⟩
abbrev main_v372 : Ref sig .tc := ⟨.hbm, 414, rfl⟩
abbrev main_v373 : Ref sig .tc := ⟨.hbm, 415, rfl⟩
abbrev main_v374 : Ref sig .tc := ⟨.hbm, 416, rfl⟩
abbrev main_v375 : Ref sig .tc := ⟨.hbm, 417, rfl⟩
abbrev main_v376 : Ref sig .tc := ⟨.hbm, 418, rfl⟩
abbrev main_v377 : Ref sig .tc := ⟨.hbm, 419, rfl⟩
abbrev main_v378 : Ref sig .tc := ⟨.hbm, 420, rfl⟩
abbrev main_v379 : Ref sig .tc := ⟨.hbm, 421, rfl⟩
abbrev main_v380 : Ref sig .tc := ⟨.hbm, 422, rfl⟩
abbrev main_cst_36 : Ref sig .tc := ⟨.hbm, 423, rfl⟩
abbrev main_v381 : Ref sig .tc := ⟨.hbm, 424, rfl⟩
abbrev main_c_37 : Ref sig .tc := ⟨.hbm, 425, rfl⟩
abbrev main_v382 : Ref sig .tc := ⟨.hbm, 426, rfl⟩
abbrev main_v383 : Ref sig .tc := ⟨.hbm, 427, rfl⟩
abbrev main_v384 : Ref sig .tc := ⟨.hbm, 428, rfl⟩
abbrev main_v385 : Ref sig .tc := ⟨.hbm, 429, rfl⟩
abbrev main_v386 : Ref sig .tc := ⟨.hbm, 430, rfl⟩
abbrev main_v387 : Ref sig .tc := ⟨.hbm, 431, rfl⟩
abbrev main_v388 : Ref sig .tc := ⟨.hbm, 432, rfl⟩
abbrev main_v389 : Ref sig .tc := ⟨.hbm, 433, rfl⟩
abbrev main_v390 : Ref sig .tc := ⟨.hbm, 434, rfl⟩
abbrev main_v391 : Ref sig .tc := ⟨.hbm, 435, rfl⟩
abbrev main_v392 : Ref sig .tc := ⟨.hbm, 436, rfl⟩
abbrev main_v393 : Ref sig .tc := ⟨.hbm, 437, rfl⟩
abbrev main_v394 : Ref sig .tc := ⟨.hbm, 438, rfl⟩
abbrev main_v395 : Ref sig .tc := ⟨.hbm, 439, rfl⟩
abbrev main_v396 : Ref sig .tc := ⟨.hbm, 440, rfl⟩
abbrev main_v397 : Ref sig .tc := ⟨.hbm, 441, rfl⟩
abbrev main_v398 : Ref sig .tc := ⟨.hbm, 442, rfl⟩
abbrev main_v399 : Ref sig .tc := ⟨.hbm, 443, rfl⟩
abbrev main_v400 : Ref sig .tc := ⟨.hbm, 444, rfl⟩
abbrev main_cst_38 : Ref sig .tc := ⟨.hbm, 445, rfl⟩
abbrev main_v401 : Ref sig .tc := ⟨.hbm, 446, rfl⟩
abbrev main_c_39 : Ref sig .tc := ⟨.hbm, 447, rfl⟩
abbrev main_v402 : Ref sig .tc := ⟨.hbm, 448, rfl⟩
abbrev main_v403 : Ref sig .tc := ⟨.hbm, 449, rfl⟩
abbrev main_v404 : Ref sig .tc := ⟨.hbm, 450, rfl⟩
abbrev main_v405 : Ref sig .tc := ⟨.hbm, 451, rfl⟩
abbrev main_v406 : Ref sig .tc := ⟨.hbm, 452, rfl⟩
abbrev main_v407 : Ref sig .tc := ⟨.hbm, 453, rfl⟩
abbrev main_v408 : Ref sig .tc := ⟨.hbm, 454, rfl⟩
abbrev main_v409 : Ref sig .tc := ⟨.hbm, 455, rfl⟩
abbrev main_v410 : Ref sig .tc := ⟨.hbm, 456, rfl⟩
abbrev main_v411 : Ref sig .tc := ⟨.hbm, 457, rfl⟩
abbrev main_v412 : Ref sig .tc := ⟨.hbm, 458, rfl⟩
abbrev main_v413 : Ref sig .tc := ⟨.hbm, 459, rfl⟩
abbrev main_v414 : Ref sig .tc := ⟨.hbm, 460, rfl⟩
abbrev main_v415 : Ref sig .tc := ⟨.hbm, 461, rfl⟩
abbrev main_v416 : Ref sig .tc := ⟨.hbm, 462, rfl⟩
abbrev main_v417 : Ref sig .tc := ⟨.hbm, 463, rfl⟩
abbrev main_v418 : Ref sig .tc := ⟨.hbm, 464, rfl⟩
abbrev main_v419 : Ref sig .tc := ⟨.hbm, 465, rfl⟩
abbrev main_v420 : Ref sig .tc := ⟨.hbm, 466, rfl⟩
abbrev main_cst_40 : Ref sig .tc := ⟨.hbm, 467, rfl⟩
abbrev main_v421 : Ref sig .tc := ⟨.hbm, 468, rfl⟩
abbrev main_c_41 : Ref sig .tc := ⟨.hbm, 469, rfl⟩
abbrev main_v422 : Ref sig .tc := ⟨.hbm, 470, rfl⟩
abbrev main_v423 : Ref sig .tc := ⟨.hbm, 471, rfl⟩
abbrev main_v424 : Ref sig .tc := ⟨.hbm, 472, rfl⟩
abbrev main_v425 : Ref sig .tc := ⟨.hbm, 473, rfl⟩
abbrev main_v426 : Ref sig .tc := ⟨.hbm, 474, rfl⟩
abbrev main_v427 : Ref sig .tc := ⟨.hbm, 475, rfl⟩
abbrev main_v428 : Ref sig .tc := ⟨.hbm, 476, rfl⟩
abbrev main_v429 : Ref sig .tc := ⟨.hbm, 477, rfl⟩
abbrev main_v430 : Ref sig .tc := ⟨.hbm, 478, rfl⟩
abbrev main_v431 : Ref sig .tc := ⟨.hbm, 479, rfl⟩
abbrev main_v432 : Ref sig .tc := ⟨.hbm, 480, rfl⟩
abbrev main_v433 : Ref sig .tc := ⟨.hbm, 481, rfl⟩
abbrev main_v434 : Ref sig .tc := ⟨.hbm, 482, rfl⟩
abbrev main_v435 : Ref sig .tc := ⟨.hbm, 483, rfl⟩
abbrev main_v436 : Ref sig .tc := ⟨.hbm, 484, rfl⟩
abbrev main_v437 : Ref sig .tc := ⟨.hbm, 485, rfl⟩
abbrev main_v438 : Ref sig .tc := ⟨.hbm, 486, rfl⟩
abbrev main_v439 : Ref sig .tc := ⟨.hbm, 487, rfl⟩
abbrev main_v440 : Ref sig .tc := ⟨.hbm, 488, rfl⟩
abbrev main_cst_42 : Ref sig .tc := ⟨.hbm, 489, rfl⟩
abbrev main_v441 : Ref sig .tc := ⟨.hbm, 490, rfl⟩
abbrev main_c_43 : Ref sig .tc := ⟨.hbm, 491, rfl⟩
abbrev main_v442 : Ref sig .tc := ⟨.hbm, 492, rfl⟩
abbrev main_v443 : Ref sig .tc := ⟨.hbm, 493, rfl⟩
abbrev main_v444 : Ref sig .tc := ⟨.hbm, 494, rfl⟩
abbrev main_v445 : Ref sig .tc := ⟨.hbm, 495, rfl⟩
abbrev main_v446 : Ref sig .tc := ⟨.hbm, 496, rfl⟩
abbrev main_v447 : Ref sig .tc := ⟨.hbm, 497, rfl⟩
abbrev main_v448 : Ref sig .tc := ⟨.hbm, 498, rfl⟩
abbrev main_v449 : Ref sig .tc := ⟨.hbm, 499, rfl⟩
abbrev main_v450 : Ref sig .tc := ⟨.hbm, 500, rfl⟩
abbrev main_v451 : Ref sig .tc := ⟨.hbm, 501, rfl⟩
abbrev main_v452 : Ref sig .tc := ⟨.hbm, 502, rfl⟩
abbrev main_v453 : Ref sig .tc := ⟨.hbm, 503, rfl⟩
abbrev main_v454 : Ref sig .tc := ⟨.hbm, 504, rfl⟩
abbrev main_v455 : Ref sig .tc := ⟨.hbm, 505, rfl⟩
abbrev main_v456 : Ref sig .tc := ⟨.hbm, 506, rfl⟩
abbrev main_v457 : Ref sig .tc := ⟨.hbm, 507, rfl⟩
abbrev main_v458 : Ref sig .tc := ⟨.hbm, 508, rfl⟩
abbrev main_v459 : Ref sig .tc := ⟨.hbm, 509, rfl⟩
abbrev main_v460 : Ref sig .tc := ⟨.hbm, 510, rfl⟩
abbrev main_cst_44 : Ref sig .tc := ⟨.hbm, 511, rfl⟩
abbrev main_v461 : Ref sig .tc := ⟨.hbm, 512, rfl⟩
abbrev main_c_45 : Ref sig .tc := ⟨.hbm, 513, rfl⟩
abbrev main_v462 : Ref sig .tc := ⟨.hbm, 514, rfl⟩
abbrev main_v463 : Ref sig .tc := ⟨.hbm, 515, rfl⟩
abbrev main_v464 : Ref sig .tc := ⟨.hbm, 516, rfl⟩
abbrev main_v465 : Ref sig .tc := ⟨.hbm, 517, rfl⟩
abbrev main_v466 : Ref sig .tc := ⟨.hbm, 518, rfl⟩
abbrev main_v467 : Ref sig .tc := ⟨.hbm, 519, rfl⟩
abbrev main_v468 : Ref sig .tc := ⟨.hbm, 520, rfl⟩
abbrev main_v469 : Ref sig .tc := ⟨.hbm, 521, rfl⟩
abbrev main_v470 : Ref sig .tc := ⟨.hbm, 522, rfl⟩
abbrev main_v471 : Ref sig .tc := ⟨.hbm, 523, rfl⟩
abbrev main_v472 : Ref sig .tc := ⟨.hbm, 524, rfl⟩
abbrev main_v473 : Ref sig .tc := ⟨.hbm, 525, rfl⟩
abbrev main_v474 : Ref sig .tc := ⟨.hbm, 526, rfl⟩
abbrev main_v475 : Ref sig .tc := ⟨.hbm, 527, rfl⟩
abbrev main_v476 : Ref sig .tc := ⟨.hbm, 528, rfl⟩
abbrev main_v477 : Ref sig .tc := ⟨.hbm, 529, rfl⟩
abbrev main_v478 : Ref sig .tc := ⟨.hbm, 530, rfl⟩
abbrev main_v479 : Ref sig .tc := ⟨.hbm, 531, rfl⟩
abbrev main_v480 : Ref sig .tc := ⟨.hbm, 532, rfl⟩
abbrev main_cst_46 : Ref sig .tc := ⟨.hbm, 533, rfl⟩
abbrev main_v481 : Ref sig .tc := ⟨.hbm, 534, rfl⟩
abbrev main_c_47 : Ref sig .tc := ⟨.hbm, 535, rfl⟩
abbrev main_v482 : Ref sig .tc := ⟨.hbm, 536, rfl⟩
abbrev main_v483 : Ref sig .tc := ⟨.hbm, 537, rfl⟩
abbrev main_v484 : Ref sig .tc := ⟨.hbm, 538, rfl⟩
abbrev main_v485 : Ref sig .tc := ⟨.hbm, 539, rfl⟩
abbrev main_v486 : Ref sig .tc := ⟨.hbm, 540, rfl⟩
abbrev main_v487 : Ref sig .tc := ⟨.hbm, 541, rfl⟩
abbrev main_v488 : Ref sig .tc := ⟨.hbm, 542, rfl⟩
abbrev main_v489 : Ref sig .tc := ⟨.hbm, 543, rfl⟩
abbrev main_v490 : Ref sig .tc := ⟨.hbm, 544, rfl⟩
abbrev main_v491 : Ref sig .tc := ⟨.hbm, 545, rfl⟩
abbrev main_v492 : Ref sig .tc := ⟨.hbm, 546, rfl⟩
abbrev main_v493 : Ref sig .tc := ⟨.hbm, 547, rfl⟩
abbrev main_v494 : Ref sig .tc := ⟨.hbm, 548, rfl⟩
abbrev main_v495 : Ref sig .tc := ⟨.hbm, 549, rfl⟩
abbrev main_v496 : Ref sig .tc := ⟨.hbm, 550, rfl⟩
abbrev main_v497 : Ref sig .tc := ⟨.hbm, 551, rfl⟩
abbrev main_v498 : Ref sig .tc := ⟨.hbm, 552, rfl⟩
abbrev main_v499 : Ref sig .tc := ⟨.hbm, 553, rfl⟩
abbrev main_v500 : Ref sig .tc := ⟨.hbm, 554, rfl⟩
abbrev main_cst_48 : Ref sig .tc := ⟨.hbm, 555, rfl⟩
abbrev main_v501 : Ref sig .tc := ⟨.hbm, 556, rfl⟩
abbrev main_c_49 : Ref sig .tc := ⟨.hbm, 557, rfl⟩
abbrev main_v502 : Ref sig .tc := ⟨.hbm, 558, rfl⟩
abbrev main_v503 : Ref sig .tc := ⟨.hbm, 559, rfl⟩
abbrev main_v504 : Ref sig .tc := ⟨.hbm, 560, rfl⟩
abbrev main_v505 : Ref sig .tc := ⟨.hbm, 561, rfl⟩
abbrev main_v506 : Ref sig .tc := ⟨.hbm, 562, rfl⟩
abbrev main_v507 : Ref sig .tc := ⟨.hbm, 563, rfl⟩
abbrev main_v508 : Ref sig .tc := ⟨.hbm, 564, rfl⟩
abbrev main_v509 : Ref sig .tc := ⟨.hbm, 565, rfl⟩
abbrev main_v510 : Ref sig .tc := ⟨.hbm, 566, rfl⟩
abbrev main_v511 : Ref sig .tc := ⟨.hbm, 567, rfl⟩
abbrev main_v512 : Ref sig .tc := ⟨.hbm, 568, rfl⟩
abbrev main_v513 : Ref sig .tc := ⟨.hbm, 569, rfl⟩
abbrev main_v514 : Ref sig .tc := ⟨.hbm, 570, rfl⟩
abbrev main_v515 : Ref sig .tc := ⟨.hbm, 571, rfl⟩
abbrev main_v516 : Ref sig .tc := ⟨.hbm, 572, rfl⟩
abbrev main_v517 : Ref sig .tc := ⟨.hbm, 573, rfl⟩
abbrev main_v518 : Ref sig .tc := ⟨.hbm, 574, rfl⟩
abbrev main_v519 : Ref sig .tc := ⟨.hbm, 575, rfl⟩
abbrev main_v520 : Ref sig .tc := ⟨.hbm, 576, rfl⟩
abbrev main_cst_50 : Ref sig .tc := ⟨.hbm, 577, rfl⟩
abbrev main_v521 : Ref sig .tc := ⟨.hbm, 578, rfl⟩
abbrev main_c_51 : Ref sig .tc := ⟨.hbm, 579, rfl⟩
abbrev main_v522 : Ref sig .tc := ⟨.hbm, 580, rfl⟩
abbrev main_v523 : Ref sig .tc := ⟨.hbm, 581, rfl⟩
abbrev main_v524 : Ref sig .tc := ⟨.hbm, 582, rfl⟩
abbrev main_v525 : Ref sig .tc := ⟨.hbm, 583, rfl⟩
abbrev main_v526 : Ref sig .tc := ⟨.hbm, 584, rfl⟩
abbrev main_v527 : Ref sig .tc := ⟨.hbm, 585, rfl⟩
abbrev main_v528 : Ref sig .tc := ⟨.hbm, 586, rfl⟩
abbrev main_v529 : Ref sig .tc := ⟨.hbm, 587, rfl⟩
abbrev main_v530 : Ref sig .tc := ⟨.hbm, 588, rfl⟩
abbrev main_v531 : Ref sig .tc := ⟨.hbm, 589, rfl⟩
abbrev main_v532 : Ref sig .tc := ⟨.hbm, 590, rfl⟩
abbrev main_v533 : Ref sig .tc := ⟨.hbm, 591, rfl⟩
abbrev main_v534 : Ref sig .tc := ⟨.hbm, 592, rfl⟩
abbrev main_v535 : Ref sig .tc := ⟨.hbm, 593, rfl⟩
abbrev main_v536 : Ref sig .tc := ⟨.hbm, 594, rfl⟩
abbrev main_v537 : Ref sig .tc := ⟨.hbm, 595, rfl⟩
abbrev main_v538 : Ref sig .tc := ⟨.hbm, 596, rfl⟩
abbrev main_v539 : Ref sig .tc := ⟨.hbm, 597, rfl⟩
abbrev main_v540 : Ref sig .tc := ⟨.hbm, 598, rfl⟩
abbrev main_cst_52 : Ref sig .tc := ⟨.hbm, 599, rfl⟩
abbrev main_v541 : Ref sig .tc := ⟨.hbm, 600, rfl⟩
abbrev main_c_53 : Ref sig .tc := ⟨.hbm, 601, rfl⟩
abbrev main_v542 : Ref sig .tc := ⟨.hbm, 602, rfl⟩
abbrev main_v543 : Ref sig .tc := ⟨.hbm, 603, rfl⟩
abbrev main_v544 : Ref sig .tc := ⟨.hbm, 604, rfl⟩
abbrev main_v545 : Ref sig .tc := ⟨.hbm, 605, rfl⟩
abbrev main_v546 : Ref sig .tc := ⟨.hbm, 606, rfl⟩
abbrev main_v547 : Ref sig .tc := ⟨.hbm, 607, rfl⟩
abbrev main_v548 : Ref sig .tc := ⟨.hbm, 608, rfl⟩
abbrev main_v549 : Ref sig .tc := ⟨.hbm, 609, rfl⟩
abbrev main_v550 : Ref sig .tc := ⟨.hbm, 610, rfl⟩
abbrev main_v551 : Ref sig .tc := ⟨.hbm, 611, rfl⟩
abbrev main_v552 : Ref sig .tc := ⟨.hbm, 612, rfl⟩
abbrev main_v553 : Ref sig .tc := ⟨.hbm, 613, rfl⟩
abbrev main_v554 : Ref sig .tc := ⟨.hbm, 614, rfl⟩
abbrev main_v555 : Ref sig .tc := ⟨.hbm, 615, rfl⟩
abbrev main_v556 : Ref sig .tc := ⟨.hbm, 616, rfl⟩
abbrev main_v557 : Ref sig .tc := ⟨.hbm, 617, rfl⟩
abbrev main_v558 : Ref sig .tc := ⟨.hbm, 618, rfl⟩
abbrev main_v559 : Ref sig .tc := ⟨.hbm, 619, rfl⟩
abbrev main_v560 : Ref sig .tc := ⟨.hbm, 620, rfl⟩
abbrev main_cst_54 : Ref sig .tc := ⟨.hbm, 621, rfl⟩
abbrev main_v561 : Ref sig .tc := ⟨.hbm, 622, rfl⟩
abbrev main_c_55 : Ref sig .tc := ⟨.hbm, 623, rfl⟩
abbrev main_v562 : Ref sig .tc := ⟨.hbm, 624, rfl⟩
abbrev main_v563 : Ref sig .tc := ⟨.hbm, 625, rfl⟩
abbrev main_v564 : Ref sig .tc := ⟨.hbm, 626, rfl⟩
abbrev main_v565 : Ref sig .tc := ⟨.hbm, 627, rfl⟩
abbrev main_v566 : Ref sig .tc := ⟨.hbm, 628, rfl⟩
abbrev main_v567 : Ref sig .tc := ⟨.hbm, 629, rfl⟩
abbrev main_v568 : Ref sig .tc := ⟨.hbm, 630, rfl⟩
abbrev main_v569 : Ref sig .tc := ⟨.hbm, 631, rfl⟩
abbrev main_v570 : Ref sig .tc := ⟨.hbm, 632, rfl⟩
abbrev main_v571 : Ref sig .tc := ⟨.hbm, 633, rfl⟩
abbrev main_v572 : Ref sig .tc := ⟨.hbm, 634, rfl⟩
abbrev main_v573 : Ref sig .tc := ⟨.hbm, 635, rfl⟩
abbrev main_v574 : Ref sig .tc := ⟨.hbm, 636, rfl⟩
abbrev main_v575 : Ref sig .tc := ⟨.hbm, 637, rfl⟩
abbrev main_v576 : Ref sig .tc := ⟨.hbm, 638, rfl⟩
abbrev main_v577 : Ref sig .tc := ⟨.hbm, 639, rfl⟩
abbrev main_v578 : Ref sig .tc := ⟨.hbm, 640, rfl⟩
abbrev main_v579 : Ref sig .tc := ⟨.hbm, 641, rfl⟩
abbrev main_v580 : Ref sig .tc := ⟨.hbm, 642, rfl⟩
abbrev main_cst_56 : Ref sig .tc := ⟨.hbm, 643, rfl⟩
abbrev main_v581 : Ref sig .tc := ⟨.hbm, 644, rfl⟩
abbrev main_c_57 : Ref sig .tc := ⟨.hbm, 645, rfl⟩
abbrev main_v582 : Ref sig .tc := ⟨.hbm, 646, rfl⟩
abbrev main_v583 : Ref sig .tc := ⟨.hbm, 647, rfl⟩
abbrev main_v584 : Ref sig .tc := ⟨.hbm, 648, rfl⟩
abbrev main_v585 : Ref sig .tc := ⟨.hbm, 649, rfl⟩
abbrev main_v586 : Ref sig .tc := ⟨.hbm, 650, rfl⟩
abbrev main_v587 : Ref sig .tc := ⟨.hbm, 651, rfl⟩
abbrev main_v588 : Ref sig .tc := ⟨.hbm, 652, rfl⟩
abbrev main_v589 : Ref sig .tc := ⟨.hbm, 653, rfl⟩
abbrev main_v590 : Ref sig .tc := ⟨.hbm, 654, rfl⟩
abbrev main_v591 : Ref sig .tc := ⟨.hbm, 655, rfl⟩
abbrev main_v592 : Ref sig .tc := ⟨.hbm, 656, rfl⟩
abbrev main_v593 : Ref sig .tc := ⟨.hbm, 657, rfl⟩
abbrev main_v594 : Ref sig .tc := ⟨.hbm, 658, rfl⟩
abbrev main_v595 : Ref sig .tc := ⟨.hbm, 659, rfl⟩
abbrev main_v596 : Ref sig .tc := ⟨.hbm, 660, rfl⟩
abbrev main_v597 : Ref sig .tc := ⟨.hbm, 661, rfl⟩
abbrev main_v598 : Ref sig .tc := ⟨.hbm, 662, rfl⟩
abbrev main_v599 : Ref sig .tc := ⟨.hbm, 663, rfl⟩
abbrev main_v600 : Ref sig .tc := ⟨.hbm, 664, rfl⟩
abbrev main_cst_58 : Ref sig .tc := ⟨.hbm, 665, rfl⟩
abbrev main_v601 : Ref sig .tc := ⟨.hbm, 666, rfl⟩
abbrev main_c_59 : Ref sig .tc := ⟨.hbm, 667, rfl⟩
abbrev main_v602 : Ref sig .tc := ⟨.hbm, 668, rfl⟩
abbrev main_v603 : Ref sig .tc := ⟨.hbm, 669, rfl⟩
abbrev main_v604 : Ref sig .tc := ⟨.hbm, 670, rfl⟩
abbrev main_v605 : Ref sig .tc := ⟨.hbm, 671, rfl⟩
abbrev main_v606 : Ref sig .tc := ⟨.hbm, 672, rfl⟩
abbrev main_v607 : Ref sig .tc := ⟨.hbm, 673, rfl⟩
abbrev main_v608 : Ref sig .tc := ⟨.hbm, 674, rfl⟩
abbrev main_v609 : Ref sig .tc := ⟨.hbm, 675, rfl⟩
abbrev main_v610 : Ref sig .tc := ⟨.hbm, 676, rfl⟩
abbrev main_v611 : Ref sig .tc := ⟨.hbm, 677, rfl⟩
abbrev main_v612 : Ref sig .tc := ⟨.hbm, 678, rfl⟩
abbrev main_v613 : Ref sig .tc := ⟨.hbm, 679, rfl⟩
abbrev main_v614 : Ref sig .tc := ⟨.hbm, 680, rfl⟩
abbrev main_v615 : Ref sig .tc := ⟨.hbm, 681, rfl⟩
abbrev main_v616 : Ref sig .tc := ⟨.hbm, 682, rfl⟩
abbrev main_v617 : Ref sig .tc := ⟨.hbm, 683, rfl⟩
abbrev main_v618 : Ref sig .tc := ⟨.hbm, 684, rfl⟩
abbrev main_v619 : Ref sig .tc := ⟨.hbm, 685, rfl⟩
abbrev main_v620 : Ref sig .tc := ⟨.hbm, 686, rfl⟩
abbrev main_cst_60 : Ref sig .tc := ⟨.hbm, 687, rfl⟩
abbrev main_v621 : Ref sig .tc := ⟨.hbm, 688, rfl⟩
abbrev main_c_61 : Ref sig .tc := ⟨.hbm, 689, rfl⟩
abbrev main_v622 : Ref sig .tc := ⟨.hbm, 690, rfl⟩
abbrev main_v623 : Ref sig .tc := ⟨.hbm, 691, rfl⟩
abbrev main_v624 : Ref sig .tc := ⟨.hbm, 692, rfl⟩
abbrev main_v625 : Ref sig .tc := ⟨.hbm, 693, rfl⟩
abbrev main_v626 : Ref sig .tc := ⟨.hbm, 694, rfl⟩
abbrev main_v627 : Ref sig .tc := ⟨.hbm, 695, rfl⟩
abbrev main_v628 : Ref sig .tc := ⟨.hbm, 696, rfl⟩
abbrev main_v629 : Ref sig .tc := ⟨.hbm, 697, rfl⟩
abbrev main_v630 : Ref sig .tc := ⟨.hbm, 698, rfl⟩
abbrev main_v631 : Ref sig .tc := ⟨.hbm, 699, rfl⟩
abbrev main_v632 : Ref sig .tc := ⟨.hbm, 700, rfl⟩
abbrev main_v633 : Ref sig .tc := ⟨.hbm, 701, rfl⟩
abbrev main_v634 : Ref sig .tc := ⟨.hbm, 702, rfl⟩
abbrev main_v635 : Ref sig .tc := ⟨.hbm, 703, rfl⟩
abbrev main_v636 : Ref sig .tc := ⟨.hbm, 704, rfl⟩
abbrev main_v637 : Ref sig .tc := ⟨.hbm, 705, rfl⟩
abbrev main_v638 : Ref sig .tc := ⟨.hbm, 706, rfl⟩
abbrev main_v639 : Ref sig .tc := ⟨.hbm, 707, rfl⟩
abbrev main_v640 : Ref sig .tc := ⟨.hbm, 708, rfl⟩
abbrev main_cst_62 : Ref sig .tc := ⟨.hbm, 709, rfl⟩
abbrev main_v641 : Ref sig .tc := ⟨.hbm, 710, rfl⟩
abbrev main_c_63 : Ref sig .tc := ⟨.hbm, 711, rfl⟩
abbrev main_v642 : Ref sig .tc := ⟨.hbm, 712, rfl⟩
abbrev main_v643 : Ref sig .tc := ⟨.hbm, 713, rfl⟩
abbrev main_v644 : Ref sig .tc := ⟨.hbm, 714, rfl⟩
abbrev main_v645 : Ref sig .tc := ⟨.hbm, 715, rfl⟩
abbrev main_v646 : Ref sig .tc := ⟨.hbm, 716, rfl⟩
abbrev main_v647 : Ref sig .tc := ⟨.hbm, 717, rfl⟩
abbrev main_v648 : Ref sig .tc := ⟨.hbm, 718, rfl⟩
abbrev main_v649 : Ref sig .tc := ⟨.hbm, 719, rfl⟩
abbrev main_v650 : Ref sig .tc := ⟨.hbm, 720, rfl⟩
abbrev main_v651 : Ref sig .tc := ⟨.hbm, 721, rfl⟩
abbrev main_v652 : Ref sig .tc := ⟨.hbm, 722, rfl⟩
abbrev main_v653 : Ref sig .tc := ⟨.hbm, 723, rfl⟩
abbrev main_v654 : Ref sig .tc := ⟨.hbm, 724, rfl⟩
abbrev main_v655 : Ref sig .tc := ⟨.hbm, 725, rfl⟩
abbrev main_v656 : Ref sig .tc := ⟨.hbm, 726, rfl⟩
abbrev main_v657 : Ref sig .tc := ⟨.hbm, 727, rfl⟩
abbrev main_v658 : Ref sig .tc := ⟨.hbm, 728, rfl⟩
abbrev main_v659 : Ref sig .tc := ⟨.hbm, 729, rfl⟩
abbrev main_v660 : Ref sig .tc := ⟨.hbm, 730, rfl⟩
abbrev main_cst_64 : Ref sig .tc := ⟨.hbm, 731, rfl⟩
abbrev main_v661 : Ref sig .tc := ⟨.hbm, 732, rfl⟩
abbrev main_c_65 : Ref sig .tc := ⟨.hbm, 733, rfl⟩
abbrev main_v662 : Ref sig .tc := ⟨.hbm, 734, rfl⟩
abbrev main_v663 : Ref sig .tc := ⟨.hbm, 735, rfl⟩
abbrev main_v664 : Ref sig .tc := ⟨.hbm, 736, rfl⟩
abbrev main_v665 : Ref sig .tc := ⟨.hbm, 737, rfl⟩
abbrev main_v666 : Ref sig .tc := ⟨.hbm, 738, rfl⟩
abbrev main_v667 : Ref sig .tc := ⟨.hbm, 739, rfl⟩
abbrev main_v668 : Ref sig .tc := ⟨.hbm, 740, rfl⟩
abbrev main_v669 : Ref sig .tc := ⟨.hbm, 741, rfl⟩
abbrev main_v670 : Ref sig .tc := ⟨.hbm, 742, rfl⟩
abbrev main_v671 : Ref sig .tc := ⟨.hbm, 743, rfl⟩
abbrev main_v672 : Ref sig .tc := ⟨.hbm, 744, rfl⟩
abbrev main_v673 : Ref sig .tc := ⟨.hbm, 745, rfl⟩
abbrev main_v674 : Ref sig .tc := ⟨.hbm, 746, rfl⟩
abbrev main_v675 : Ref sig .tc := ⟨.hbm, 747, rfl⟩
abbrev main_v676 : Ref sig .tc := ⟨.hbm, 748, rfl⟩
abbrev main_v677 : Ref sig .tc := ⟨.hbm, 749, rfl⟩
abbrev main_v678 : Ref sig .tc := ⟨.hbm, 750, rfl⟩
abbrev main_v679 : Ref sig .tc := ⟨.hbm, 751, rfl⟩
abbrev main_v680 : Ref sig .tc := ⟨.hbm, 752, rfl⟩
abbrev main_cst_66 : Ref sig .tc := ⟨.hbm, 753, rfl⟩
abbrev main_v681 : Ref sig .tc := ⟨.hbm, 754, rfl⟩
abbrev main_c_67 : Ref sig .tc := ⟨.hbm, 755, rfl⟩
abbrev main_v682 : Ref sig .tc := ⟨.hbm, 756, rfl⟩
abbrev main_v683 : Ref sig .tc := ⟨.hbm, 757, rfl⟩
abbrev main_v684 : Ref sig .tc := ⟨.hbm, 758, rfl⟩
abbrev main_v685 : Ref sig .tc := ⟨.hbm, 759, rfl⟩
abbrev main_v686 : Ref sig .tc := ⟨.hbm, 760, rfl⟩
abbrev main_v687 : Ref sig .tc := ⟨.hbm, 761, rfl⟩
abbrev main_v688 : Ref sig .tc := ⟨.hbm, 762, rfl⟩
abbrev main_v689 : Ref sig .tc := ⟨.hbm, 763, rfl⟩
abbrev main_v690 : Ref sig .tc := ⟨.hbm, 764, rfl⟩
abbrev main_v691 : Ref sig .tc := ⟨.hbm, 765, rfl⟩
abbrev main_v692 : Ref sig .tc := ⟨.hbm, 766, rfl⟩
abbrev main_v693 : Ref sig .tc := ⟨.hbm, 767, rfl⟩
abbrev main_v694 : Ref sig .tc := ⟨.hbm, 768, rfl⟩
abbrev main_v695 : Ref sig .tc := ⟨.hbm, 769, rfl⟩
abbrev main_v696 : Ref sig .tc := ⟨.hbm, 770, rfl⟩
abbrev main_v697 : Ref sig .tc := ⟨.hbm, 771, rfl⟩
abbrev main_v698 : Ref sig .tc := ⟨.hbm, 772, rfl⟩
abbrev main_v699 : Ref sig .tc := ⟨.hbm, 773, rfl⟩
abbrev main_v700 : Ref sig .tc := ⟨.hbm, 774, rfl⟩
abbrev main_cst_68 : Ref sig .tc := ⟨.hbm, 775, rfl⟩
abbrev main_v701 : Ref sig .tc := ⟨.hbm, 776, rfl⟩
abbrev main_c_69 : Ref sig .tc := ⟨.hbm, 777, rfl⟩
abbrev main_v702 : Ref sig .tc := ⟨.hbm, 778, rfl⟩
abbrev main_v703 : Ref sig .tc := ⟨.hbm, 779, rfl⟩
abbrev main_v704 : Ref sig .tc := ⟨.hbm, 780, rfl⟩
abbrev main_v705 : Ref sig .tc := ⟨.hbm, 781, rfl⟩
abbrev main_v706 : Ref sig .tc := ⟨.hbm, 782, rfl⟩
abbrev main_v707 : Ref sig .tc := ⟨.hbm, 783, rfl⟩
abbrev main_v708 : Ref sig .tc := ⟨.hbm, 784, rfl⟩
abbrev main_v709 : Ref sig .tc := ⟨.hbm, 785, rfl⟩
abbrev main_v710 : Ref sig .tc := ⟨.hbm, 786, rfl⟩
abbrev main_v711 : Ref sig .tc := ⟨.hbm, 787, rfl⟩
abbrev main_v712 : Ref sig .tc := ⟨.hbm, 788, rfl⟩
abbrev main_v713 : Ref sig .tc := ⟨.hbm, 789, rfl⟩
abbrev main_v714 : Ref sig .tc := ⟨.hbm, 790, rfl⟩
abbrev main_v715 : Ref sig .tc := ⟨.hbm, 791, rfl⟩
abbrev main_v716 : Ref sig .tc := ⟨.hbm, 792, rfl⟩
abbrev main_v717 : Ref sig .tc := ⟨.hbm, 793, rfl⟩
abbrev main_v718 : Ref sig .tc := ⟨.hbm, 794, rfl⟩
abbrev main_v719 : Ref sig .tc := ⟨.hbm, 795, rfl⟩
abbrev main_v720 : Ref sig .tc := ⟨.hbm, 796, rfl⟩
abbrev main_cst_70 : Ref sig .tc := ⟨.hbm, 797, rfl⟩
abbrev main_v721 : Ref sig .tc := ⟨.hbm, 798, rfl⟩
abbrev main_c_71 : Ref sig .tc := ⟨.hbm, 799, rfl⟩
abbrev main_v722 : Ref sig .tc := ⟨.hbm, 800, rfl⟩
abbrev main_v723 : Ref sig .tc := ⟨.hbm, 801, rfl⟩
abbrev main_v724 : Ref sig .tc := ⟨.hbm, 802, rfl⟩
abbrev main_v725 : Ref sig .tc := ⟨.hbm, 803, rfl⟩
abbrev main_v726 : Ref sig .tc := ⟨.hbm, 804, rfl⟩
abbrev main_v727 : Ref sig .tc := ⟨.hbm, 805, rfl⟩
abbrev main_v728 : Ref sig .tc := ⟨.hbm, 806, rfl⟩
abbrev main_v729 : Ref sig .tc := ⟨.hbm, 807, rfl⟩
abbrev main_v730 : Ref sig .tc := ⟨.hbm, 808, rfl⟩
abbrev main_v731 : Ref sig .tc := ⟨.hbm, 809, rfl⟩
abbrev main_v732 : Ref sig .tc := ⟨.hbm, 810, rfl⟩
abbrev main_v733 : Ref sig .tc := ⟨.hbm, 811, rfl⟩
abbrev main_v734 : Ref sig .tc := ⟨.hbm, 812, rfl⟩
abbrev main_v735 : Ref sig .tc := ⟨.hbm, 813, rfl⟩
abbrev main_v736 : Ref sig .tc := ⟨.hbm, 814, rfl⟩
abbrev main_v737 : Ref sig .tc := ⟨.hbm, 815, rfl⟩
abbrev main_v738 : Ref sig .tc := ⟨.hbm, 816, rfl⟩
abbrev main_v739 : Ref sig .tc := ⟨.hbm, 817, rfl⟩
abbrev main_v740 : Ref sig .tc := ⟨.hbm, 818, rfl⟩
abbrev main_cst_72 : Ref sig .tc := ⟨.hbm, 819, rfl⟩
abbrev main_v741 : Ref sig .tc := ⟨.hbm, 820, rfl⟩
abbrev main_c_73 : Ref sig .tc := ⟨.hbm, 821, rfl⟩
abbrev main_v742 : Ref sig .tc := ⟨.hbm, 822, rfl⟩
abbrev main_v743 : Ref sig .tc := ⟨.hbm, 823, rfl⟩
abbrev main_v744 : Ref sig .tc := ⟨.hbm, 824, rfl⟩
abbrev main_v745 : Ref sig .tc := ⟨.hbm, 825, rfl⟩
abbrev main_v746 : Ref sig .tc := ⟨.hbm, 826, rfl⟩
abbrev main_v747 : Ref sig .tc := ⟨.hbm, 827, rfl⟩
abbrev main_v748 : Ref sig .tc := ⟨.hbm, 828, rfl⟩
abbrev main_v749 : Ref sig .tc := ⟨.hbm, 829, rfl⟩
abbrev main_v750 : Ref sig .tc := ⟨.hbm, 830, rfl⟩
abbrev main_v751 : Ref sig .tc := ⟨.hbm, 831, rfl⟩
abbrev main_v752 : Ref sig .tc := ⟨.hbm, 832, rfl⟩
abbrev main_v753 : Ref sig .tc := ⟨.hbm, 833, rfl⟩
abbrev main_v754 : Ref sig .tc := ⟨.hbm, 834, rfl⟩
abbrev main_v755 : Ref sig .tc := ⟨.hbm, 835, rfl⟩
abbrev main_v756 : Ref sig .tc := ⟨.hbm, 836, rfl⟩
abbrev main_v757 : Ref sig .tc := ⟨.hbm, 837, rfl⟩
abbrev main_v758 : Ref sig .tc := ⟨.hbm, 838, rfl⟩
abbrev main_v759 : Ref sig .tc := ⟨.hbm, 839, rfl⟩
abbrev main_v760 : Ref sig .tc := ⟨.hbm, 840, rfl⟩
abbrev main_cst_74 : Ref sig .tc := ⟨.hbm, 841, rfl⟩
abbrev main_v761 : Ref sig .tc := ⟨.hbm, 842, rfl⟩
abbrev main_c_75 : Ref sig .tc := ⟨.hbm, 843, rfl⟩
abbrev main_v762 : Ref sig .tc := ⟨.hbm, 844, rfl⟩
abbrev main_v763 : Ref sig .tc := ⟨.hbm, 845, rfl⟩
abbrev main_v764 : Ref sig .tc := ⟨.hbm, 846, rfl⟩
abbrev main_v765 : Ref sig .tc := ⟨.hbm, 847, rfl⟩
abbrev main_v766 : Ref sig .tc := ⟨.hbm, 848, rfl⟩
abbrev main_v767 : Ref sig .tc := ⟨.hbm, 849, rfl⟩
abbrev main_v768 : Ref sig .tc := ⟨.hbm, 850, rfl⟩
abbrev main_v769 : Ref sig .tc := ⟨.hbm, 851, rfl⟩
abbrev main_v770 : Ref sig .tc := ⟨.hbm, 852, rfl⟩
abbrev main_v771 : Ref sig .tc := ⟨.hbm, 853, rfl⟩
abbrev main_v772 : Ref sig .tc := ⟨.hbm, 854, rfl⟩
abbrev main_v773 : Ref sig .tc := ⟨.hbm, 855, rfl⟩
abbrev main_v774 : Ref sig .tc := ⟨.hbm, 856, rfl⟩
abbrev main_v775 : Ref sig .tc := ⟨.hbm, 857, rfl⟩
abbrev main_v776 : Ref sig .tc := ⟨.hbm, 858, rfl⟩
abbrev main_v777 : Ref sig .tc := ⟨.hbm, 859, rfl⟩
abbrev main_v778 : Ref sig .tc := ⟨.hbm, 860, rfl⟩
abbrev main_v779 : Ref sig .tc := ⟨.hbm, 861, rfl⟩
abbrev main_v780 : Ref sig .tc := ⟨.hbm, 862, rfl⟩
abbrev main_cst_76 : Ref sig .tc := ⟨.hbm, 863, rfl⟩
abbrev main_v781 : Ref sig .tc := ⟨.hbm, 864, rfl⟩
abbrev main_c_77 : Ref sig .tc := ⟨.hbm, 865, rfl⟩
abbrev main_v782 : Ref sig .tc := ⟨.hbm, 866, rfl⟩
abbrev main_v783 : Ref sig .tc := ⟨.hbm, 867, rfl⟩
abbrev main_v784 : Ref sig .tc := ⟨.hbm, 868, rfl⟩
abbrev main_v785 : Ref sig .tc := ⟨.hbm, 869, rfl⟩
abbrev main_v786 : Ref sig .tc := ⟨.hbm, 870, rfl⟩
abbrev main_v787 : Ref sig .tc := ⟨.hbm, 871, rfl⟩
abbrev main_v788 : Ref sig .tc := ⟨.hbm, 872, rfl⟩
abbrev main_v789 : Ref sig .tc := ⟨.hbm, 873, rfl⟩
abbrev main_v790 : Ref sig .tc := ⟨.hbm, 874, rfl⟩
abbrev main_v791 : Ref sig .tc := ⟨.hbm, 875, rfl⟩
abbrev main_v792 : Ref sig .tc := ⟨.hbm, 876, rfl⟩
abbrev main_v793 : Ref sig .tc := ⟨.hbm, 877, rfl⟩
abbrev main_v794 : Ref sig .tc := ⟨.hbm, 878, rfl⟩
abbrev main_v795 : Ref sig .tc := ⟨.hbm, 879, rfl⟩
abbrev main_v796 : Ref sig .tc := ⟨.hbm, 880, rfl⟩
abbrev main_v797 : Ref sig .tc := ⟨.hbm, 881, rfl⟩
abbrev main_v798 : Ref sig .tc := ⟨.hbm, 882, rfl⟩
abbrev main_v799 : Ref sig .tc := ⟨.hbm, 883, rfl⟩
abbrev main_v800 : Ref sig .tc := ⟨.hbm, 884, rfl⟩
abbrev main_cst_78 : Ref sig .tc := ⟨.hbm, 885, rfl⟩
abbrev main_v801 : Ref sig .tc := ⟨.hbm, 886, rfl⟩
abbrev main_c_79 : Ref sig .tc := ⟨.hbm, 887, rfl⟩
abbrev main_v802 : Ref sig .tc := ⟨.hbm, 888, rfl⟩
abbrev main_v803 : Ref sig .tc := ⟨.hbm, 889, rfl⟩
abbrev main_v804 : Ref sig .tc := ⟨.hbm, 890, rfl⟩
abbrev main_v805 : Ref sig .tc := ⟨.hbm, 891, rfl⟩
abbrev main_v806 : Ref sig .tc := ⟨.hbm, 892, rfl⟩
abbrev main_v807 : Ref sig .tc := ⟨.hbm, 893, rfl⟩
abbrev main_v808 : Ref sig .tc := ⟨.hbm, 894, rfl⟩
abbrev main_v809 : Ref sig .tc := ⟨.hbm, 895, rfl⟩
abbrev main_v810 : Ref sig .tc := ⟨.hbm, 896, rfl⟩
abbrev main_v811 : Ref sig .tc := ⟨.hbm, 897, rfl⟩
abbrev main_v812 : Ref sig .tc := ⟨.hbm, 898, rfl⟩
abbrev main_v813 : Ref sig .tc := ⟨.hbm, 899, rfl⟩
abbrev main_v814 : Ref sig .tc := ⟨.hbm, 900, rfl⟩
abbrev main_v815 : Ref sig .tc := ⟨.hbm, 901, rfl⟩
abbrev main_v816 : Ref sig .tc := ⟨.hbm, 902, rfl⟩
abbrev main_v817 : Ref sig .tc := ⟨.hbm, 903, rfl⟩
abbrev main_v818 : Ref sig .tc := ⟨.hbm, 904, rfl⟩
abbrev main_v819 : Ref sig .tc := ⟨.hbm, 905, rfl⟩
abbrev main_v820 : Ref sig .tc := ⟨.hbm, 906, rfl⟩
abbrev main_cst_80 : Ref sig .tc := ⟨.hbm, 907, rfl⟩
abbrev main_v821 : Ref sig .tc := ⟨.hbm, 908, rfl⟩
abbrev main_c_81 : Ref sig .tc := ⟨.hbm, 909, rfl⟩
abbrev main_v822 : Ref sig .tc := ⟨.hbm, 910, rfl⟩
abbrev main_v823 : Ref sig .tc := ⟨.hbm, 911, rfl⟩
abbrev main_v824 : Ref sig .tc := ⟨.hbm, 912, rfl⟩
abbrev main_v825 : Ref sig .tc := ⟨.hbm, 913, rfl⟩
abbrev main_v826 : Ref sig .tc := ⟨.hbm, 914, rfl⟩
abbrev main_v827 : Ref sig .tc := ⟨.hbm, 915, rfl⟩
abbrev main_v828 : Ref sig .tc := ⟨.hbm, 916, rfl⟩
abbrev main_v829 : Ref sig .tc := ⟨.hbm, 917, rfl⟩
abbrev main_v830 : Ref sig .tc := ⟨.hbm, 918, rfl⟩
abbrev main_v831 : Ref sig .tc := ⟨.hbm, 919, rfl⟩
abbrev main_v832 : Ref sig .tc := ⟨.hbm, 920, rfl⟩
abbrev main_v833 : Ref sig .tc := ⟨.hbm, 921, rfl⟩
abbrev main_v834 : Ref sig .tc := ⟨.hbm, 922, rfl⟩
abbrev main_v835 : Ref sig .tc := ⟨.hbm, 923, rfl⟩
abbrev main_v836 : Ref sig .tc := ⟨.hbm, 924, rfl⟩
abbrev main_v837 : Ref sig .tc := ⟨.hbm, 925, rfl⟩
abbrev main_v838 : Ref sig .tc := ⟨.hbm, 926, rfl⟩
abbrev main_v839 : Ref sig .tc := ⟨.hbm, 927, rfl⟩
abbrev main_v840 : Ref sig .tc := ⟨.hbm, 928, rfl⟩
abbrev main_cst_82 : Ref sig .tc := ⟨.hbm, 929, rfl⟩
abbrev main_v841 : Ref sig .tc := ⟨.hbm, 930, rfl⟩
abbrev main_c_83 : Ref sig .tc := ⟨.hbm, 931, rfl⟩
abbrev main_v842 : Ref sig .tc := ⟨.hbm, 932, rfl⟩
abbrev main_v843 : Ref sig .tc := ⟨.hbm, 933, rfl⟩
abbrev main_v844 : Ref sig .tc := ⟨.hbm, 934, rfl⟩
abbrev main_v845 : Ref sig .tc := ⟨.hbm, 935, rfl⟩
abbrev main_v846 : Ref sig .tc := ⟨.hbm, 936, rfl⟩
abbrev main_v847 : Ref sig .tc := ⟨.hbm, 937, rfl⟩
abbrev main_v848 : Ref sig .tc := ⟨.hbm, 938, rfl⟩
abbrev main_v849 : Ref sig .tc := ⟨.hbm, 939, rfl⟩
abbrev main_v850 : Ref sig .tc := ⟨.hbm, 940, rfl⟩
abbrev main_v851 : Ref sig .tc := ⟨.hbm, 941, rfl⟩
abbrev main_v852 : Ref sig .tc := ⟨.hbm, 942, rfl⟩
abbrev main_v853 : Ref sig .tc := ⟨.hbm, 943, rfl⟩
abbrev main_v854 : Ref sig .tc := ⟨.hbm, 944, rfl⟩
abbrev main_v855 : Ref sig .tc := ⟨.hbm, 945, rfl⟩
abbrev main_v856 : Ref sig .tc := ⟨.hbm, 946, rfl⟩
abbrev main_v857 : Ref sig .tc := ⟨.hbm, 947, rfl⟩
abbrev main_v858 : Ref sig .tc := ⟨.hbm, 948, rfl⟩
abbrev main_v859 : Ref sig .tc := ⟨.hbm, 949, rfl⟩
abbrev main_v860 : Ref sig .tc := ⟨.hbm, 950, rfl⟩
abbrev main_cst_84 : Ref sig .tc := ⟨.hbm, 951, rfl⟩
abbrev main_v861 : Ref sig .tc := ⟨.hbm, 952, rfl⟩
abbrev main_c_85 : Ref sig .tc := ⟨.hbm, 953, rfl⟩
abbrev main_v862 : Ref sig .tc := ⟨.hbm, 954, rfl⟩
abbrev main_v863 : Ref sig .tc := ⟨.hbm, 955, rfl⟩
abbrev main_v864 : Ref sig .tc := ⟨.hbm, 956, rfl⟩
abbrev main_v865 : Ref sig .tc := ⟨.hbm, 957, rfl⟩
abbrev main_v866 : Ref sig .tc := ⟨.hbm, 958, rfl⟩
abbrev main_v867 : Ref sig .tc := ⟨.hbm, 959, rfl⟩
abbrev main_v868 : Ref sig .tc := ⟨.hbm, 960, rfl⟩
abbrev main_v869 : Ref sig .tc := ⟨.hbm, 961, rfl⟩
abbrev main_v870 : Ref sig .tc := ⟨.hbm, 962, rfl⟩
abbrev main_v871 : Ref sig .tc := ⟨.hbm, 963, rfl⟩
abbrev main_v872 : Ref sig .tc := ⟨.hbm, 964, rfl⟩
abbrev main_v873 : Ref sig .tc := ⟨.hbm, 965, rfl⟩
abbrev main_v874 : Ref sig .tc := ⟨.hbm, 966, rfl⟩
abbrev main_v875 : Ref sig .tc := ⟨.hbm, 967, rfl⟩
abbrev main_v876 : Ref sig .tc := ⟨.hbm, 968, rfl⟩
abbrev main_v877 : Ref sig .tc := ⟨.hbm, 969, rfl⟩
abbrev main_v878 : Ref sig .tc := ⟨.hbm, 970, rfl⟩
abbrev main_v879 : Ref sig .tc := ⟨.hbm, 971, rfl⟩
abbrev main_v880 : Ref sig .tc := ⟨.hbm, 972, rfl⟩
abbrev main_cst_86 : Ref sig .tc := ⟨.hbm, 973, rfl⟩
abbrev main_v881 : Ref sig .tc := ⟨.hbm, 974, rfl⟩
abbrev main_c_87 : Ref sig .tc := ⟨.hbm, 975, rfl⟩
abbrev main_v882 : Ref sig .tc := ⟨.hbm, 976, rfl⟩
abbrev main_v883 : Ref sig .tc := ⟨.hbm, 977, rfl⟩
abbrev main_v884 : Ref sig .tc := ⟨.hbm, 978, rfl⟩
abbrev main_v885 : Ref sig .tc := ⟨.hbm, 979, rfl⟩
abbrev main_v886 : Ref sig .tc := ⟨.hbm, 980, rfl⟩
abbrev main_v887 : Ref sig .tc := ⟨.hbm, 981, rfl⟩
abbrev main_v888 : Ref sig .tc := ⟨.hbm, 982, rfl⟩
abbrev main_v889 : Ref sig .tc := ⟨.hbm, 983, rfl⟩
abbrev main_v890 : Ref sig .tc := ⟨.hbm, 984, rfl⟩
abbrev main_v891 : Ref sig .tc := ⟨.hbm, 985, rfl⟩
abbrev main_v892 : Ref sig .tc := ⟨.hbm, 986, rfl⟩
abbrev main_v893 : Ref sig .tc := ⟨.hbm, 987, rfl⟩
abbrev main_v894 : Ref sig .tc := ⟨.hbm, 988, rfl⟩
abbrev main_v895 : Ref sig .tc := ⟨.hbm, 989, rfl⟩
abbrev main_v896 : Ref sig .tc := ⟨.hbm, 990, rfl⟩
abbrev main_v897 : Ref sig .tc := ⟨.hbm, 991, rfl⟩
abbrev main_v898 : Ref sig .tc := ⟨.hbm, 992, rfl⟩
abbrev main_v899 : Ref sig .tc := ⟨.hbm, 993, rfl⟩
abbrev main_v900 : Ref sig .tc := ⟨.hbm, 994, rfl⟩
abbrev main_cst_88 : Ref sig .tc := ⟨.hbm, 995, rfl⟩
abbrev main_v901 : Ref sig .tc := ⟨.hbm, 996, rfl⟩
abbrev main_c_89 : Ref sig .tc := ⟨.hbm, 997, rfl⟩
abbrev main_v902 : Ref sig .tc := ⟨.hbm, 998, rfl⟩
abbrev main_v903 : Ref sig .tc := ⟨.hbm, 999, rfl⟩
abbrev main_v904 : Ref sig .tc := ⟨.hbm, 1000, rfl⟩
abbrev main_v905 : Ref sig .tc := ⟨.hbm, 1001, rfl⟩
abbrev main_v906 : Ref sig .tc := ⟨.hbm, 1002, rfl⟩
abbrev main_v907 : Ref sig .tc := ⟨.hbm, 1003, rfl⟩
abbrev main_v908 : Ref sig .tc := ⟨.hbm, 1004, rfl⟩
abbrev main_v909 : Ref sig .tc := ⟨.hbm, 1005, rfl⟩
abbrev main_v910 : Ref sig .tc := ⟨.hbm, 1006, rfl⟩
abbrev main_v911 : Ref sig .tc := ⟨.hbm, 1007, rfl⟩
abbrev main_v912 : Ref sig .tc := ⟨.hbm, 1008, rfl⟩
abbrev main_v913 : Ref sig .tc := ⟨.hbm, 1009, rfl⟩
abbrev main_v914 : Ref sig .tc := ⟨.hbm, 1010, rfl⟩
abbrev main_v915 : Ref sig .tc := ⟨.hbm, 1011, rfl⟩
abbrev main_v916 : Ref sig .tc := ⟨.hbm, 1012, rfl⟩
abbrev main_v917 : Ref sig .tc := ⟨.hbm, 1013, rfl⟩
abbrev main_v918 : Ref sig .tc := ⟨.hbm, 1014, rfl⟩
abbrev main_v919 : Ref sig .tc := ⟨.hbm, 1015, rfl⟩
abbrev main_v920 : Ref sig .tc := ⟨.hbm, 1016, rfl⟩
abbrev main_cst_90 : Ref sig .tc := ⟨.hbm, 1017, rfl⟩
abbrev main_v921 : Ref sig .tc := ⟨.hbm, 1018, rfl⟩
abbrev main_c_91 : Ref sig .tc := ⟨.hbm, 1019, rfl⟩
abbrev main_v922 : Ref sig .tc := ⟨.hbm, 1020, rfl⟩
abbrev main_v923 : Ref sig .tc := ⟨.hbm, 1021, rfl⟩
abbrev main_v924 : Ref sig .tc := ⟨.hbm, 1022, rfl⟩
abbrev main_v925 : Ref sig .tc := ⟨.hbm, 1023, rfl⟩
abbrev main_v926 : Ref sig .tc := ⟨.hbm, 1024, rfl⟩
abbrev main_v927 : Ref sig .tc := ⟨.hbm, 1025, rfl⟩
abbrev main_v928 : Ref sig .tc := ⟨.hbm, 1026, rfl⟩
abbrev main_v929 : Ref sig .tc := ⟨.hbm, 1027, rfl⟩
abbrev main_v930 : Ref sig .tc := ⟨.hbm, 1028, rfl⟩
abbrev main_v931 : Ref sig .tc := ⟨.hbm, 1029, rfl⟩
abbrev main_v932 : Ref sig .tc := ⟨.hbm, 1030, rfl⟩
abbrev main_v933 : Ref sig .tc := ⟨.hbm, 1031, rfl⟩
abbrev main_v934 : Ref sig .tc := ⟨.hbm, 1032, rfl⟩
abbrev main_v935 : Ref sig .tc := ⟨.hbm, 1033, rfl⟩
abbrev main_v936 : Ref sig .tc := ⟨.hbm, 1034, rfl⟩
abbrev main_v937 : Ref sig .tc := ⟨.hbm, 1035, rfl⟩
abbrev main_v938 : Ref sig .tc := ⟨.hbm, 1036, rfl⟩
abbrev main_v939 : Ref sig .tc := ⟨.hbm, 1037, rfl⟩
abbrev main_v940 : Ref sig .tc := ⟨.hbm, 1038, rfl⟩
abbrev main_cst_92 : Ref sig .tc := ⟨.hbm, 1039, rfl⟩
abbrev main_v941 : Ref sig .tc := ⟨.hbm, 1040, rfl⟩
abbrev main_c_93 : Ref sig .tc := ⟨.hbm, 1041, rfl⟩
abbrev main_v942 : Ref sig .tc := ⟨.hbm, 1042, rfl⟩
abbrev main_v943 : Ref sig .tc := ⟨.hbm, 1043, rfl⟩
abbrev main_v944 : Ref sig .tc := ⟨.hbm, 1044, rfl⟩
abbrev main_v945 : Ref sig .tc := ⟨.hbm, 1045, rfl⟩
abbrev main_v946 : Ref sig .tc := ⟨.hbm, 1046, rfl⟩
abbrev main_v947 : Ref sig .tc := ⟨.hbm, 1047, rfl⟩
abbrev main_v948 : Ref sig .tc := ⟨.hbm, 1048, rfl⟩
abbrev main_v949 : Ref sig .tc := ⟨.hbm, 1049, rfl⟩
abbrev main_v950 : Ref sig .tc := ⟨.hbm, 1050, rfl⟩
abbrev main_v951 : Ref sig .tc := ⟨.hbm, 1051, rfl⟩
abbrev main_v952 : Ref sig .tc := ⟨.hbm, 1052, rfl⟩
abbrev main_v953 : Ref sig .tc := ⟨.hbm, 1053, rfl⟩
abbrev main_v954 : Ref sig .tc := ⟨.hbm, 1054, rfl⟩
abbrev main_v955 : Ref sig .tc := ⟨.hbm, 1055, rfl⟩
abbrev main_v956 : Ref sig .tc := ⟨.hbm, 1056, rfl⟩
abbrev main_v957 : Ref sig .tc := ⟨.hbm, 1057, rfl⟩
abbrev main_v958 : Ref sig .tc := ⟨.hbm, 1058, rfl⟩
abbrev main_v959 : Ref sig .tc := ⟨.hbm, 1059, rfl⟩
abbrev main_v960 : Ref sig .tc := ⟨.hbm, 1060, rfl⟩
abbrev main_cst_94 : Ref sig .tc := ⟨.hbm, 1061, rfl⟩
abbrev main_v961 : Ref sig .tc := ⟨.hbm, 1062, rfl⟩
abbrev main_c_95 : Ref sig .tc := ⟨.hbm, 1063, rfl⟩
abbrev main_v962 : Ref sig .tc := ⟨.hbm, 1064, rfl⟩
abbrev main_v963 : Ref sig .tc := ⟨.hbm, 1065, rfl⟩
abbrev main_v964 : Ref sig .tc := ⟨.hbm, 1066, rfl⟩
abbrev main_v965 : Ref sig .tc := ⟨.hbm, 1067, rfl⟩
abbrev main_v966 : Ref sig .tc := ⟨.hbm, 1068, rfl⟩
abbrev main_v967 : Ref sig .tc := ⟨.hbm, 1069, rfl⟩
abbrev main_v968 : Ref sig .tc := ⟨.hbm, 1070, rfl⟩
abbrev main_v969 : Ref sig .tc := ⟨.hbm, 1071, rfl⟩
abbrev main_v970 : Ref sig .tc := ⟨.hbm, 1072, rfl⟩
abbrev main_v971 : Ref sig .tc := ⟨.hbm, 1073, rfl⟩
abbrev main_v972 : Ref sig .tc := ⟨.hbm, 1074, rfl⟩
abbrev main_v973 : Ref sig .tc := ⟨.hbm, 1075, rfl⟩
abbrev main_v974 : Ref sig .tc := ⟨.hbm, 1076, rfl⟩
abbrev main_v975 : Ref sig .tc := ⟨.hbm, 1077, rfl⟩
abbrev main_v976 : Ref sig .tc := ⟨.hbm, 1078, rfl⟩
abbrev main_v977 : Ref sig .tc := ⟨.hbm, 1079, rfl⟩
abbrev main_v978 : Ref sig .tc := ⟨.hbm, 1080, rfl⟩
abbrev main_v979 : Ref sig .tc := ⟨.hbm, 1081, rfl⟩
abbrev main_v980 : Ref sig .tc := ⟨.hbm, 1082, rfl⟩
abbrev main_cst_96 : Ref sig .tc := ⟨.hbm, 1083, rfl⟩
abbrev main_v981 : Ref sig .tc := ⟨.hbm, 1084, rfl⟩
abbrev main_c_97 : Ref sig .tc := ⟨.hbm, 1085, rfl⟩
abbrev main_v982 : Ref sig .tc := ⟨.hbm, 1086, rfl⟩
abbrev main_v983 : Ref sig .tc := ⟨.hbm, 1087, rfl⟩
abbrev main_v984 : Ref sig .tc := ⟨.hbm, 1088, rfl⟩
abbrev main_v985 : Ref sig .tc := ⟨.hbm, 1089, rfl⟩
abbrev main_v986 : Ref sig .tc := ⟨.hbm, 1090, rfl⟩
abbrev main_v987 : Ref sig .tc := ⟨.hbm, 1091, rfl⟩
abbrev main_v988 : Ref sig .tc := ⟨.hbm, 1092, rfl⟩
abbrev main_v989 : Ref sig .tc := ⟨.hbm, 1093, rfl⟩
abbrev main_v990 : Ref sig .tc := ⟨.hbm, 1094, rfl⟩
abbrev main_v991 : Ref sig .tc := ⟨.hbm, 1095, rfl⟩
abbrev main_v992 : Ref sig .tc := ⟨.hbm, 1096, rfl⟩
abbrev main_v993 : Ref sig .tc := ⟨.hbm, 1097, rfl⟩
abbrev main_v994 : Ref sig .tc := ⟨.hbm, 1098, rfl⟩
abbrev main_v995 : Ref sig .tc := ⟨.hbm, 1099, rfl⟩
abbrev main_v996 : Ref sig .tc := ⟨.hbm, 1100, rfl⟩
abbrev main_v997 : Ref sig .tc := ⟨.hbm, 1101, rfl⟩
abbrev main_v998 : Ref sig .tc := ⟨.hbm, 1102, rfl⟩
abbrev main_v999 : Ref sig .tc := ⟨.hbm, 1103, rfl⟩
abbrev main_v1000 : Ref sig .tc := ⟨.hbm, 1104, rfl⟩
abbrev main_cst_98 : Ref sig .tc := ⟨.hbm, 1105, rfl⟩
abbrev main_v1001 : Ref sig .tc := ⟨.hbm, 1106, rfl⟩
abbrev main_c_99 : Ref sig .tc := ⟨.hbm, 1107, rfl⟩
abbrev main_v1002 : Ref sig .tc := ⟨.hbm, 1108, rfl⟩
abbrev main_v1003 : Ref sig .tc := ⟨.hbm, 1109, rfl⟩
abbrev main_v1004 : Ref sig .tc := ⟨.hbm, 1110, rfl⟩
abbrev main_v1005 : Ref sig .tc := ⟨.hbm, 1111, rfl⟩
abbrev main_v1006 : Ref sig .tc := ⟨.hbm, 1112, rfl⟩
abbrev main_v1007 : Ref sig .tc := ⟨.hbm, 1113, rfl⟩
abbrev main_v1008 : Ref sig .tc := ⟨.hbm, 1114, rfl⟩
abbrev main_v1009 : Ref sig .tc := ⟨.hbm, 1115, rfl⟩
abbrev main_v1010 : Ref sig .tc := ⟨.hbm, 1116, rfl⟩
abbrev main_v1011 : Ref sig .tc := ⟨.hbm, 1117, rfl⟩
abbrev main_v1012 : Ref sig .tc := ⟨.hbm, 1118, rfl⟩
abbrev main_v1013 : Ref sig .tc := ⟨.hbm, 1119, rfl⟩
abbrev main_v1014 : Ref sig .tc := ⟨.hbm, 1120, rfl⟩
abbrev main_v1015 : Ref sig .tc := ⟨.hbm, 1121, rfl⟩
abbrev main_v1016 : Ref sig .tc := ⟨.hbm, 1122, rfl⟩
abbrev main_v1017 : Ref sig .tc := ⟨.hbm, 1123, rfl⟩
abbrev main_v1018 : Ref sig .tc := ⟨.hbm, 1124, rfl⟩
abbrev main_v1019 : Ref sig .tc := ⟨.hbm, 1125, rfl⟩
abbrev main_v1020 : Ref sig .tc := ⟨.hbm, 1126, rfl⟩
abbrev main_cst_100 : Ref sig .tc := ⟨.hbm, 1127, rfl⟩
abbrev main_v1021 : Ref sig .tc := ⟨.hbm, 1128, rfl⟩
abbrev main_c_101 : Ref sig .tc := ⟨.hbm, 1129, rfl⟩
abbrev main_v1022 : Ref sig .tc := ⟨.hbm, 1130, rfl⟩
abbrev main_v1023 : Ref sig .tc := ⟨.hbm, 1131, rfl⟩
abbrev main_v1024 : Ref sig .tc := ⟨.hbm, 1132, rfl⟩
abbrev main_v1025 : Ref sig .tc := ⟨.hbm, 1133, rfl⟩
abbrev main_v1026 : Ref sig .tc := ⟨.hbm, 1134, rfl⟩
abbrev main_v1027 : Ref sig .tc := ⟨.hbm, 1135, rfl⟩
abbrev main_v1028 : Ref sig .tc := ⟨.hbm, 1136, rfl⟩
abbrev main_v1029 : Ref sig .tc := ⟨.hbm, 1137, rfl⟩
abbrev main_v1030 : Ref sig .tc := ⟨.hbm, 1138, rfl⟩
abbrev main_v1031 : Ref sig .tc := ⟨.hbm, 1139, rfl⟩
abbrev main_v1032 : Ref sig .tc := ⟨.hbm, 1140, rfl⟩
abbrev main_v1033 : Ref sig .tc := ⟨.hbm, 1141, rfl⟩
abbrev main_v1034 : Ref sig .tc := ⟨.hbm, 1142, rfl⟩
abbrev main_v1035 : Ref sig .tc := ⟨.hbm, 1143, rfl⟩
abbrev main_v1036 : Ref sig .tc := ⟨.hbm, 1144, rfl⟩
abbrev main_v1037 : Ref sig .tc := ⟨.hbm, 1145, rfl⟩
abbrev main_v1038 : Ref sig .tc := ⟨.hbm, 1146, rfl⟩
abbrev main_v1039 : Ref sig .tc := ⟨.hbm, 1147, rfl⟩
abbrev main_v1040 : Ref sig .tc := ⟨.hbm, 1148, rfl⟩
abbrev main_cst_102 : Ref sig .tc := ⟨.hbm, 1149, rfl⟩
abbrev main_v1041 : Ref sig .tc := ⟨.hbm, 1150, rfl⟩
abbrev main_c_103 : Ref sig .tc := ⟨.hbm, 1151, rfl⟩
abbrev main_v1042 : Ref sig .tc := ⟨.hbm, 1152, rfl⟩
abbrev main_v1043 : Ref sig .tc := ⟨.hbm, 1153, rfl⟩
abbrev main_v1044 : Ref sig .tc := ⟨.hbm, 1154, rfl⟩
abbrev main_v1045 : Ref sig .tc := ⟨.hbm, 1155, rfl⟩
abbrev main_v1046 : Ref sig .tc := ⟨.hbm, 1156, rfl⟩
abbrev main_v1047 : Ref sig .tc := ⟨.hbm, 1157, rfl⟩
abbrev main_v1048 : Ref sig .tc := ⟨.hbm, 1158, rfl⟩
abbrev main_v1049 : Ref sig .tc := ⟨.hbm, 1159, rfl⟩
abbrev main_v1050 : Ref sig .tc := ⟨.hbm, 1160, rfl⟩
abbrev main_v1051 : Ref sig .tc := ⟨.hbm, 1161, rfl⟩
abbrev main_v1052 : Ref sig .tc := ⟨.hbm, 1162, rfl⟩
abbrev main_v1053 : Ref sig .tc := ⟨.hbm, 1163, rfl⟩
abbrev main_v1054 : Ref sig .tc := ⟨.hbm, 1164, rfl⟩
abbrev main_v1055 : Ref sig .tc := ⟨.hbm, 1165, rfl⟩
abbrev main_v1056 : Ref sig .tc := ⟨.hbm, 1166, rfl⟩
abbrev main_v1057 : Ref sig .tc := ⟨.hbm, 1167, rfl⟩
abbrev main_v1058 : Ref sig .tc := ⟨.hbm, 1168, rfl⟩
abbrev main_v1059 : Ref sig .tc := ⟨.hbm, 1169, rfl⟩
abbrev main_v1060 : Ref sig .tc := ⟨.hbm, 1170, rfl⟩
abbrev main_cst_104 : Ref sig .tc := ⟨.hbm, 1171, rfl⟩
abbrev main_v1061 : Ref sig .tc := ⟨.hbm, 1172, rfl⟩
abbrev main_c_105 : Ref sig .tc := ⟨.hbm, 1173, rfl⟩
abbrev main_v1062 : Ref sig .tc := ⟨.hbm, 1174, rfl⟩
abbrev main_v1063 : Ref sig .tc := ⟨.hbm, 1175, rfl⟩
abbrev main_v1064 : Ref sig .tc := ⟨.hbm, 1176, rfl⟩
abbrev main_v1065 : Ref sig .tc := ⟨.hbm, 1177, rfl⟩
abbrev main_v1066 : Ref sig .tc := ⟨.hbm, 1178, rfl⟩
abbrev main_v1067 : Ref sig .tc := ⟨.hbm, 1179, rfl⟩
abbrev main_v1068 : Ref sig .tc := ⟨.hbm, 1180, rfl⟩
abbrev main_v1069 : Ref sig .tc := ⟨.hbm, 1181, rfl⟩
abbrev main_v1070 : Ref sig .tc := ⟨.hbm, 1182, rfl⟩
abbrev main_v1071 : Ref sig .tc := ⟨.hbm, 1183, rfl⟩
abbrev main_v1072 : Ref sig .tc := ⟨.hbm, 1184, rfl⟩
abbrev main_v1073 : Ref sig .tc := ⟨.hbm, 1185, rfl⟩
abbrev main_v1074 : Ref sig .tc := ⟨.hbm, 1186, rfl⟩
abbrev main_v1075 : Ref sig .tc := ⟨.hbm, 1187, rfl⟩
abbrev main_v1076 : Ref sig .tc := ⟨.hbm, 1188, rfl⟩
abbrev main_v1077 : Ref sig .tc := ⟨.hbm, 1189, rfl⟩
abbrev main_v1078 : Ref sig .tc := ⟨.hbm, 1190, rfl⟩
abbrev main_v1079 : Ref sig .tc := ⟨.hbm, 1191, rfl⟩
abbrev main_v1080 : Ref sig .tc := ⟨.hbm, 1192, rfl⟩
abbrev main_cst_106 : Ref sig .tc := ⟨.hbm, 1193, rfl⟩
abbrev main_v1081 : Ref sig .tc := ⟨.hbm, 1194, rfl⟩
abbrev main_c_107 : Ref sig .tc := ⟨.hbm, 1195, rfl⟩
abbrev main_v1082 : Ref sig .tc := ⟨.hbm, 1196, rfl⟩
abbrev main_v1083 : Ref sig .tc := ⟨.hbm, 1197, rfl⟩
abbrev main_v1084 : Ref sig .tc := ⟨.hbm, 1198, rfl⟩
abbrev main_v1085 : Ref sig .tc := ⟨.hbm, 1199, rfl⟩
abbrev main_v1086 : Ref sig .tc := ⟨.hbm, 1200, rfl⟩
abbrev main_v1087 : Ref sig .tc := ⟨.hbm, 1201, rfl⟩
abbrev main_v1088 : Ref sig .tc := ⟨.hbm, 1202, rfl⟩
abbrev main_v1089 : Ref sig .tc := ⟨.hbm, 1203, rfl⟩
abbrev main_v1090 : Ref sig .tc := ⟨.hbm, 1204, rfl⟩
abbrev main_v1091 : Ref sig .tc := ⟨.hbm, 1205, rfl⟩
abbrev main_v1092 : Ref sig .tc := ⟨.hbm, 1206, rfl⟩
abbrev main_v1093 : Ref sig .tc := ⟨.hbm, 1207, rfl⟩
abbrev main_v1094 : Ref sig .tc := ⟨.hbm, 1208, rfl⟩
abbrev main_v1095 : Ref sig .tc := ⟨.hbm, 1209, rfl⟩
abbrev main_v1096 : Ref sig .tc := ⟨.hbm, 1210, rfl⟩
abbrev main_v1097 : Ref sig .tc := ⟨.hbm, 1211, rfl⟩
abbrev main_v1098 : Ref sig .tc := ⟨.hbm, 1212, rfl⟩
abbrev main_v1099 : Ref sig .tc := ⟨.hbm, 1213, rfl⟩
abbrev main_v1100 : Ref sig .tc := ⟨.hbm, 1214, rfl⟩
abbrev main_cst_108 : Ref sig .tc := ⟨.hbm, 1215, rfl⟩
abbrev main_v1101 : Ref sig .tc := ⟨.hbm, 1216, rfl⟩
abbrev main_c_109 : Ref sig .tc := ⟨.hbm, 1217, rfl⟩
abbrev main_v1102 : Ref sig .tc := ⟨.hbm, 1218, rfl⟩
abbrev main_v1103 : Ref sig .tc := ⟨.hbm, 1219, rfl⟩
abbrev main_v1104 : Ref sig .tc := ⟨.hbm, 1220, rfl⟩
abbrev main_v1105 : Ref sig .tc := ⟨.hbm, 1221, rfl⟩
abbrev main_v1106 : Ref sig .tc := ⟨.hbm, 1222, rfl⟩
abbrev main_v1107 : Ref sig .tc := ⟨.hbm, 1223, rfl⟩
abbrev main_v1108 : Ref sig .tc := ⟨.hbm, 1224, rfl⟩
abbrev main_v1109 : Ref sig .tc := ⟨.hbm, 1225, rfl⟩
abbrev main_v1110 : Ref sig .tc := ⟨.hbm, 1226, rfl⟩
abbrev main_v1111 : Ref sig .tc := ⟨.hbm, 1227, rfl⟩
abbrev main_v1112 : Ref sig .tc := ⟨.hbm, 1228, rfl⟩
abbrev main_v1113 : Ref sig .tc := ⟨.hbm, 1229, rfl⟩
abbrev main_v1114 : Ref sig .tc := ⟨.hbm, 1230, rfl⟩
abbrev main_v1115 : Ref sig .tc := ⟨.hbm, 1231, rfl⟩
abbrev main_v1116 : Ref sig .tc := ⟨.hbm, 1232, rfl⟩
abbrev main_v1117 : Ref sig .tc := ⟨.hbm, 1233, rfl⟩
abbrev main_v1118 : Ref sig .tc := ⟨.hbm, 1234, rfl⟩
abbrev main_v1119 : Ref sig .tc := ⟨.hbm, 1235, rfl⟩
abbrev main_v1120 : Ref sig .tc := ⟨.hbm, 1236, rfl⟩
abbrev main_cst_110 : Ref sig .tc := ⟨.hbm, 1237, rfl⟩
abbrev main_v1121 : Ref sig .tc := ⟨.hbm, 1238, rfl⟩
abbrev main_c_111 : Ref sig .tc := ⟨.hbm, 1239, rfl⟩
abbrev main_v1122 : Ref sig .tc := ⟨.hbm, 1240, rfl⟩
abbrev main_v1123 : Ref sig .tc := ⟨.hbm, 1241, rfl⟩
abbrev main_v1124 : Ref sig .tc := ⟨.hbm, 1242, rfl⟩
abbrev main_v1125 : Ref sig .tc := ⟨.hbm, 1243, rfl⟩
abbrev main_v1126 : Ref sig .tc := ⟨.hbm, 1244, rfl⟩
abbrev main_v1127 : Ref sig .tc := ⟨.hbm, 1245, rfl⟩
abbrev main_v1128 : Ref sig .tc := ⟨.hbm, 1246, rfl⟩
abbrev main_v1129 : Ref sig .tc := ⟨.hbm, 1247, rfl⟩
abbrev main_v1130 : Ref sig .tc := ⟨.hbm, 1248, rfl⟩
abbrev main_v1131 : Ref sig .tc := ⟨.hbm, 1249, rfl⟩
abbrev main_v1132 : Ref sig .tc := ⟨.hbm, 1250, rfl⟩
abbrev main_v1133 : Ref sig .tc := ⟨.hbm, 1251, rfl⟩
abbrev main_v1134 : Ref sig .tc := ⟨.hbm, 1252, rfl⟩
abbrev main_v1135 : Ref sig .tc := ⟨.hbm, 1253, rfl⟩
abbrev main_v1136 : Ref sig .tc := ⟨.hbm, 1254, rfl⟩
abbrev main_v1137 : Ref sig .tc := ⟨.hbm, 1255, rfl⟩
abbrev main_v1138 : Ref sig .tc := ⟨.hbm, 1256, rfl⟩
abbrev main_v1139 : Ref sig .tc := ⟨.hbm, 1257, rfl⟩
abbrev main_v1140 : Ref sig .tc := ⟨.hbm, 1258, rfl⟩
abbrev main_cst_112 : Ref sig .tc := ⟨.hbm, 1259, rfl⟩
abbrev main_v1141 : Ref sig .tc := ⟨.hbm, 1260, rfl⟩
abbrev main_c_113 : Ref sig .tc := ⟨.hbm, 1261, rfl⟩
abbrev main_v1142 : Ref sig .tc := ⟨.hbm, 1262, rfl⟩
abbrev main_v1143 : Ref sig .tc := ⟨.hbm, 1263, rfl⟩
abbrev main_v1144 : Ref sig .tc := ⟨.hbm, 1264, rfl⟩
abbrev main_v1145 : Ref sig .tc := ⟨.hbm, 1265, rfl⟩
abbrev main_v1146 : Ref sig .tc := ⟨.hbm, 1266, rfl⟩
abbrev main_v1147 : Ref sig .tc := ⟨.hbm, 1267, rfl⟩
abbrev main_v1148 : Ref sig .tc := ⟨.hbm, 1268, rfl⟩
abbrev main_v1149 : Ref sig .tc := ⟨.hbm, 1269, rfl⟩
abbrev main_v1150 : Ref sig .tc := ⟨.hbm, 1270, rfl⟩
abbrev main_v1151 : Ref sig .tc := ⟨.hbm, 1271, rfl⟩
abbrev main_v1152 : Ref sig .tc := ⟨.hbm, 1272, rfl⟩
abbrev main_v1153 : Ref sig .tc := ⟨.hbm, 1273, rfl⟩
abbrev main_v1154 : Ref sig .tc := ⟨.hbm, 1274, rfl⟩
abbrev main_v1155 : Ref sig .tc := ⟨.hbm, 1275, rfl⟩
abbrev main_v1156 : Ref sig .tc := ⟨.hbm, 1276, rfl⟩
abbrev main_v1157 : Ref sig .tc := ⟨.hbm, 1277, rfl⟩
abbrev main_v1158 : Ref sig .tc := ⟨.hbm, 1278, rfl⟩
abbrev main_v1159 : Ref sig .tc := ⟨.hbm, 1279, rfl⟩
abbrev main_v1160 : Ref sig .tc := ⟨.hbm, 1280, rfl⟩
abbrev main_cst_114 : Ref sig .tc := ⟨.hbm, 1281, rfl⟩
abbrev main_v1161 : Ref sig .tc := ⟨.hbm, 1282, rfl⟩
abbrev main_c_115 : Ref sig .tc := ⟨.hbm, 1283, rfl⟩
abbrev main_v1162 : Ref sig .tc := ⟨.hbm, 1284, rfl⟩
abbrev main_v1163 : Ref sig .tc := ⟨.hbm, 1285, rfl⟩
abbrev main_v1164 : Ref sig .tc := ⟨.hbm, 1286, rfl⟩
abbrev main_v1165 : Ref sig .tc := ⟨.hbm, 1287, rfl⟩
abbrev main_v1166 : Ref sig .tc := ⟨.hbm, 1288, rfl⟩
abbrev main_v1167 : Ref sig .tc := ⟨.hbm, 1289, rfl⟩
abbrev main_v1168 : Ref sig .tc := ⟨.hbm, 1290, rfl⟩
abbrev main_v1169 : Ref sig .tc := ⟨.hbm, 1291, rfl⟩
abbrev main_v1170 : Ref sig .tc := ⟨.hbm, 1292, rfl⟩
abbrev main_v1171 : Ref sig .tc := ⟨.hbm, 1293, rfl⟩
abbrev main_v1172 : Ref sig .tc := ⟨.hbm, 1294, rfl⟩
abbrev main_v1173 : Ref sig .tc := ⟨.hbm, 1295, rfl⟩
abbrev main_v1174 : Ref sig .tc := ⟨.hbm, 1296, rfl⟩
abbrev main_v1175 : Ref sig .tc := ⟨.hbm, 1297, rfl⟩
abbrev main_v1176 : Ref sig .tc := ⟨.hbm, 1298, rfl⟩
abbrev main_v1177 : Ref sig .tc := ⟨.hbm, 1299, rfl⟩
abbrev main_v1178 : Ref sig .tc := ⟨.hbm, 1300, rfl⟩
abbrev main_v1179 : Ref sig .tc := ⟨.hbm, 1301, rfl⟩
abbrev main_v1180 : Ref sig .tc := ⟨.hbm, 1302, rfl⟩
abbrev main_cst_116 : Ref sig .tc := ⟨.hbm, 1303, rfl⟩
abbrev main_v1181 : Ref sig .tc := ⟨.hbm, 1304, rfl⟩
abbrev main_c_117 : Ref sig .tc := ⟨.hbm, 1305, rfl⟩
abbrev main_v1182 : Ref sig .tc := ⟨.hbm, 1306, rfl⟩
abbrev main_v1183 : Ref sig .tc := ⟨.hbm, 1307, rfl⟩
abbrev main_v1184 : Ref sig .tc := ⟨.hbm, 1308, rfl⟩
abbrev main_v1185 : Ref sig .tc := ⟨.hbm, 1309, rfl⟩
abbrev main_v1186 : Ref sig .tc := ⟨.hbm, 1310, rfl⟩
abbrev main_v1187 : Ref sig .tc := ⟨.hbm, 1311, rfl⟩
abbrev main_v1188 : Ref sig .tc := ⟨.hbm, 1312, rfl⟩
abbrev main_v1189 : Ref sig .tc := ⟨.hbm, 1313, rfl⟩
abbrev main_v1190 : Ref sig .tc := ⟨.hbm, 1314, rfl⟩
abbrev main_v1191 : Ref sig .tc := ⟨.hbm, 1315, rfl⟩
abbrev main_v1192 : Ref sig .tc := ⟨.hbm, 1316, rfl⟩
abbrev main_v1193 : Ref sig .tc := ⟨.hbm, 1317, rfl⟩
abbrev main_v1194 : Ref sig .tc := ⟨.hbm, 1318, rfl⟩
abbrev main_v1195 : Ref sig .tc := ⟨.hbm, 1319, rfl⟩
abbrev main_v1196 : Ref sig .tc := ⟨.hbm, 1320, rfl⟩
abbrev main_v1197 : Ref sig .tc := ⟨.hbm, 1321, rfl⟩
abbrev main_v1198 : Ref sig .tc := ⟨.hbm, 1322, rfl⟩
abbrev main_v1199 : Ref sig .tc := ⟨.hbm, 1323, rfl⟩
abbrev main_v1200 : Ref sig .tc := ⟨.hbm, 1324, rfl⟩
abbrev main_cst_118 : Ref sig .tc := ⟨.hbm, 1325, rfl⟩
abbrev main_v1201 : Ref sig .tc := ⟨.hbm, 1326, rfl⟩
abbrev main_c_119 : Ref sig .tc := ⟨.hbm, 1327, rfl⟩
abbrev main_v1202 : Ref sig .tc := ⟨.hbm, 1328, rfl⟩
abbrev main_v1203 : Ref sig .tc := ⟨.hbm, 1329, rfl⟩
abbrev main_v1204 : Ref sig .tc := ⟨.hbm, 1330, rfl⟩
abbrev main_v1205 : Ref sig .tc := ⟨.hbm, 1331, rfl⟩
abbrev main_v1206 : Ref sig .tc := ⟨.hbm, 1332, rfl⟩
abbrev main_v1207 : Ref sig .tc := ⟨.hbm, 1333, rfl⟩
abbrev main_v1208 : Ref sig .tc := ⟨.hbm, 1334, rfl⟩
abbrev main_v1209 : Ref sig .tc := ⟨.hbm, 1335, rfl⟩
abbrev main_v1210 : Ref sig .tc := ⟨.hbm, 1336, rfl⟩
abbrev main_v1211 : Ref sig .tc := ⟨.hbm, 1337, rfl⟩
abbrev main_v1212 : Ref sig .tc := ⟨.hbm, 1338, rfl⟩
abbrev main_v1213 : Ref sig .tc := ⟨.hbm, 1339, rfl⟩
abbrev main_v1214 : Ref sig .tc := ⟨.hbm, 1340, rfl⟩
abbrev main_v1215 : Ref sig .tc := ⟨.hbm, 1341, rfl⟩
abbrev main_v1216 : Ref sig .tc := ⟨.hbm, 1342, rfl⟩
abbrev main_v1217 : Ref sig .tc := ⟨.hbm, 1343, rfl⟩
abbrev main_v1218 : Ref sig .tc := ⟨.hbm, 1344, rfl⟩
abbrev main_v1219 : Ref sig .tc := ⟨.hbm, 1345, rfl⟩
abbrev main_v1220 : Ref sig .tc := ⟨.hbm, 1346, rfl⟩
abbrev main_cst_120 : Ref sig .tc := ⟨.hbm, 1347, rfl⟩
abbrev main_v1221 : Ref sig .tc := ⟨.hbm, 1348, rfl⟩
abbrev main_c_121 : Ref sig .tc := ⟨.hbm, 1349, rfl⟩
abbrev main_v1222 : Ref sig .tc := ⟨.hbm, 1350, rfl⟩
abbrev main_v1223 : Ref sig .tc := ⟨.hbm, 1351, rfl⟩
abbrev main_v1224 : Ref sig .tc := ⟨.hbm, 1352, rfl⟩
abbrev main_v1225 : Ref sig .tc := ⟨.hbm, 1353, rfl⟩
abbrev main_v1226 : Ref sig .tc := ⟨.hbm, 1354, rfl⟩
abbrev main_v1227 : Ref sig .tc := ⟨.hbm, 1355, rfl⟩
abbrev main_v1228 : Ref sig .tc := ⟨.hbm, 1356, rfl⟩
abbrev main_v1229 : Ref sig .tc := ⟨.hbm, 1357, rfl⟩
abbrev main_v1230 : Ref sig .tc := ⟨.hbm, 1358, rfl⟩
abbrev main_v1231 : Ref sig .tc := ⟨.hbm, 1359, rfl⟩
abbrev main_v1232 : Ref sig .tc := ⟨.hbm, 1360, rfl⟩
abbrev main_v1233 : Ref sig .tc := ⟨.hbm, 1361, rfl⟩
abbrev main_v1234 : Ref sig .tc := ⟨.hbm, 1362, rfl⟩
abbrev main_v1235 : Ref sig .tc := ⟨.hbm, 1363, rfl⟩
abbrev main_v1236 : Ref sig .tc := ⟨.hbm, 1364, rfl⟩
abbrev main_v1237 : Ref sig .tc := ⟨.hbm, 1365, rfl⟩
abbrev main_v1238 : Ref sig .tc := ⟨.hbm, 1366, rfl⟩
abbrev main_v1239 : Ref sig .tc := ⟨.hbm, 1367, rfl⟩
abbrev main_v1240 : Ref sig .tc := ⟨.hbm, 1368, rfl⟩
abbrev main_cst_122 : Ref sig .tc := ⟨.hbm, 1369, rfl⟩
abbrev main_v1241 : Ref sig .tc := ⟨.hbm, 1370, rfl⟩
abbrev main_c_123 : Ref sig .tc := ⟨.hbm, 1371, rfl⟩
abbrev main_v1242 : Ref sig .tc := ⟨.hbm, 1372, rfl⟩
abbrev main_v1243 : Ref sig .tc := ⟨.hbm, 1373, rfl⟩
abbrev main_v1244 : Ref sig .tc := ⟨.hbm, 1374, rfl⟩
abbrev main_v1245 : Ref sig .tc := ⟨.hbm, 1375, rfl⟩
abbrev main_v1246 : Ref sig .tc := ⟨.hbm, 1376, rfl⟩
abbrev main_v1247 : Ref sig .tc := ⟨.hbm, 1377, rfl⟩
abbrev main_v1248 : Ref sig .tc := ⟨.hbm, 1378, rfl⟩
abbrev main_v1249 : Ref sig .tc := ⟨.hbm, 1379, rfl⟩
abbrev main_v1250 : Ref sig .tc := ⟨.hbm, 1380, rfl⟩
abbrev main_v1251 : Ref sig .tc := ⟨.hbm, 1381, rfl⟩
abbrev main_v1252 : Ref sig .tc := ⟨.hbm, 1382, rfl⟩
abbrev main_v1253 : Ref sig .tc := ⟨.hbm, 1383, rfl⟩
abbrev main_v1254 : Ref sig .tc := ⟨.hbm, 1384, rfl⟩
abbrev main_v1255 : Ref sig .tc := ⟨.hbm, 1385, rfl⟩
abbrev main_v1256 : Ref sig .tc := ⟨.hbm, 1386, rfl⟩
abbrev main_v1257 : Ref sig .tc := ⟨.hbm, 1387, rfl⟩
abbrev main_v1258 : Ref sig .tc := ⟨.hbm, 1388, rfl⟩
abbrev main_v1259 : Ref sig .tc := ⟨.hbm, 1389, rfl⟩
abbrev main_v1260 : Ref sig .tc := ⟨.hbm, 1390, rfl⟩
abbrev main_cst_124 : Ref sig .tc := ⟨.hbm, 1391, rfl⟩
abbrev main_v1261 : Ref sig .tc := ⟨.hbm, 1392, rfl⟩
abbrev main_c_125 : Ref sig .tc := ⟨.hbm, 1393, rfl⟩
abbrev main_v1262 : Ref sig .tc := ⟨.hbm, 1394, rfl⟩
abbrev main_v1263 : Ref sig .tc := ⟨.hbm, 1395, rfl⟩
abbrev main_v1264 : Ref sig .tc := ⟨.hbm, 1396, rfl⟩
abbrev main_v1265 : Ref sig .tc := ⟨.hbm, 1397, rfl⟩
abbrev main_v1266 : Ref sig .tc := ⟨.hbm, 1398, rfl⟩
abbrev main_v1267 : Ref sig .tc := ⟨.hbm, 1399, rfl⟩
abbrev main_v1268 : Ref sig .tc := ⟨.hbm, 1400, rfl⟩
abbrev main_v1269 : Ref sig .tc := ⟨.hbm, 1401, rfl⟩
abbrev main_v1270 : Ref sig .tc := ⟨.hbm, 1402, rfl⟩
abbrev main_v1271 : Ref sig .tc := ⟨.hbm, 1403, rfl⟩
abbrev main_v1272 : Ref sig .tc := ⟨.hbm, 1404, rfl⟩
abbrev main_v1273 : Ref sig .tc := ⟨.hbm, 1405, rfl⟩
abbrev main_v1274 : Ref sig .tc := ⟨.hbm, 1406, rfl⟩
abbrev main_v1275 : Ref sig .tc := ⟨.hbm, 1407, rfl⟩
abbrev main_v1276 : Ref sig .tc := ⟨.hbm, 1408, rfl⟩
abbrev main_v1277 : Ref sig .tc := ⟨.hbm, 1409, rfl⟩
abbrev main_v1278 : Ref sig .tc := ⟨.hbm, 1410, rfl⟩
abbrev main_v1279 : Ref sig .tc := ⟨.hbm, 1411, rfl⟩
abbrev main_v1280 : Ref sig .tc := ⟨.hbm, 1412, rfl⟩
abbrev main_cst_126 : Ref sig .tc := ⟨.hbm, 1413, rfl⟩
abbrev main_v1281 : Ref sig .tc := ⟨.hbm, 1414, rfl⟩
abbrev main_c_127 : Ref sig .tc := ⟨.hbm, 1415, rfl⟩
abbrev main_v1282 : Ref sig .tc := ⟨.hbm, 1416, rfl⟩
abbrev main_v1283 : Ref sig .tc := ⟨.hbm, 1417, rfl⟩
abbrev main_v1284 : Ref sig .tc := ⟨.hbm, 1418, rfl⟩
abbrev main_v1285 : Ref sig .tc := ⟨.hbm, 1419, rfl⟩
abbrev main_v1286 : Ref sig .tc := ⟨.hbm, 1420, rfl⟩
abbrev main_v1287 : Ref sig .tc := ⟨.hbm, 1421, rfl⟩
abbrev main_v1288 : Ref sig .tc := ⟨.hbm, 1422, rfl⟩
abbrev main_v1289 : Ref sig .tc := ⟨.hbm, 1423, rfl⟩
abbrev main_v1290 : Ref sig .tc := ⟨.hbm, 1424, rfl⟩
abbrev main_v1291 : Ref sig .tc := ⟨.hbm, 1425, rfl⟩
abbrev main_v1292 : Ref sig .tc := ⟨.hbm, 1426, rfl⟩
abbrev main_v1293 : Ref sig .tc := ⟨.hbm, 1427, rfl⟩
abbrev main_v1294 : Ref sig .tc := ⟨.hbm, 1428, rfl⟩
abbrev main_v1295 : Ref sig .tc := ⟨.hbm, 1429, rfl⟩
abbrev main_v1296 : Ref sig .tc := ⟨.hbm, 1430, rfl⟩
abbrev main_v1297 : Ref sig .tc := ⟨.hbm, 1431, rfl⟩
abbrev main_v1298 : Ref sig .tc := ⟨.hbm, 1432, rfl⟩
abbrev main_v1299 : Ref sig .tc := ⟨.hbm, 1433, rfl⟩
abbrev main_v1300 : Ref sig .tc := ⟨.hbm, 1434, rfl⟩
abbrev main_cst_128 : Ref sig .tc := ⟨.hbm, 1435, rfl⟩
abbrev main_v1301 : Ref sig .tc := ⟨.hbm, 1436, rfl⟩
abbrev main_c_129 : Ref sig .tc := ⟨.hbm, 1437, rfl⟩
abbrev main_v1302 : Ref sig .tc := ⟨.hbm, 1438, rfl⟩
abbrev main_v1303 : Ref sig .tc := ⟨.hbm, 1439, rfl⟩
abbrev main_v1304 : Ref sig .tc := ⟨.hbm, 1440, rfl⟩
abbrev main_v1305 : Ref sig .tc := ⟨.hbm, 1441, rfl⟩
abbrev main_v1306 : Ref sig .tc := ⟨.hbm, 1442, rfl⟩
abbrev main_v1307 : Ref sig .tc := ⟨.hbm, 1443, rfl⟩
abbrev main_v1308 : Ref sig .tc := ⟨.hbm, 1444, rfl⟩
abbrev main_v1309 : Ref sig .tc := ⟨.hbm, 1445, rfl⟩
abbrev main_v1310 : Ref sig .tc := ⟨.hbm, 1446, rfl⟩
abbrev main_v1311 : Ref sig .tc := ⟨.hbm, 1447, rfl⟩
abbrev main_v1312 : Ref sig .tc := ⟨.hbm, 1448, rfl⟩
abbrev main_v1313 : Ref sig .tc := ⟨.hbm, 1449, rfl⟩
abbrev main_v1314 : Ref sig .tc := ⟨.hbm, 1450, rfl⟩
abbrev main_v1315 : Ref sig .tc := ⟨.hbm, 1451, rfl⟩
abbrev main_v1316 : Ref sig .tc := ⟨.hbm, 1452, rfl⟩
abbrev main_v1317 : Ref sig .tc := ⟨.hbm, 1453, rfl⟩
abbrev main_v1318 : Ref sig .tc := ⟨.hbm, 1454, rfl⟩
abbrev main_v1319 : Ref sig .tc := ⟨.hbm, 1455, rfl⟩
abbrev main_v1320 : Ref sig .tc := ⟨.hbm, 1456, rfl⟩
abbrev main_cst_130 : Ref sig .tc := ⟨.hbm, 1457, rfl⟩
abbrev main_v1321 : Ref sig .tc := ⟨.hbm, 1458, rfl⟩
abbrev main_c_131 : Ref sig .tc := ⟨.hbm, 1459, rfl⟩
abbrev main_v1322 : Ref sig .tc := ⟨.hbm, 1460, rfl⟩
abbrev main_v1323 : Ref sig .tc := ⟨.hbm, 1461, rfl⟩
abbrev main_v1324 : Ref sig .tc := ⟨.hbm, 1462, rfl⟩
abbrev main_v1325 : Ref sig .tc := ⟨.hbm, 1463, rfl⟩
abbrev main_v1326 : Ref sig .tc := ⟨.hbm, 1464, rfl⟩
abbrev main_v1327 : Ref sig .tc := ⟨.hbm, 1465, rfl⟩
abbrev main_v1328 : Ref sig .tc := ⟨.hbm, 1466, rfl⟩
abbrev main_v1329 : Ref sig .tc := ⟨.hbm, 1467, rfl⟩
abbrev main_v1330 : Ref sig .tc := ⟨.hbm, 1468, rfl⟩
abbrev main_v1331 : Ref sig .tc := ⟨.hbm, 1469, rfl⟩
abbrev main_v1332 : Ref sig .tc := ⟨.hbm, 1470, rfl⟩
abbrev main_v1333 : Ref sig .tc := ⟨.hbm, 1471, rfl⟩
abbrev main_v1334 : Ref sig .tc := ⟨.hbm, 1472, rfl⟩
abbrev main_v1335 : Ref sig .tc := ⟨.hbm, 1473, rfl⟩
abbrev main_v1336 : Ref sig .tc := ⟨.hbm, 1474, rfl⟩
abbrev main_v1337 : Ref sig .tc := ⟨.hbm, 1475, rfl⟩
abbrev main_v1338 : Ref sig .tc := ⟨.hbm, 1476, rfl⟩
abbrev main_v1339 : Ref sig .tc := ⟨.hbm, 1477, rfl⟩
abbrev main_v1340 : Ref sig .tc := ⟨.hbm, 1478, rfl⟩
abbrev main_cst_132 : Ref sig .tc := ⟨.hbm, 1479, rfl⟩
abbrev main_v1341 : Ref sig .tc := ⟨.hbm, 1480, rfl⟩
abbrev main_c_133 : Ref sig .tc := ⟨.hbm, 1481, rfl⟩
abbrev main_v1342 : Ref sig .tc := ⟨.hbm, 1482, rfl⟩
abbrev main_v1343 : Ref sig .tc := ⟨.hbm, 1483, rfl⟩
abbrev main_v1344 : Ref sig .tc := ⟨.hbm, 1484, rfl⟩
abbrev main_v1345 : Ref sig .tc := ⟨.hbm, 1485, rfl⟩
abbrev main_v1346 : Ref sig .tc := ⟨.hbm, 1486, rfl⟩
abbrev main_v1347 : Ref sig .tc := ⟨.hbm, 1487, rfl⟩
abbrev main_v1348 : Ref sig .tc := ⟨.hbm, 1488, rfl⟩
abbrev main_v1349 : Ref sig .tc := ⟨.hbm, 1489, rfl⟩
abbrev main_v1350 : Ref sig .tc := ⟨.hbm, 1490, rfl⟩
abbrev main_v1351 : Ref sig .tc := ⟨.hbm, 1491, rfl⟩
abbrev main_v1352 : Ref sig .tc := ⟨.hbm, 1492, rfl⟩
abbrev main_v1353 : Ref sig .tc := ⟨.hbm, 1493, rfl⟩
abbrev main_v1354 : Ref sig .tc := ⟨.hbm, 1494, rfl⟩
abbrev main_v1355 : Ref sig .tc := ⟨.hbm, 1495, rfl⟩
abbrev main_v1356 : Ref sig .tc := ⟨.hbm, 1496, rfl⟩
abbrev main_v1357 : Ref sig .tc := ⟨.hbm, 1497, rfl⟩
abbrev main_v1358 : Ref sig .tc := ⟨.hbm, 1498, rfl⟩
abbrev main_v1359 : Ref sig .tc := ⟨.hbm, 1499, rfl⟩
abbrev main_v1360 : Ref sig .tc := ⟨.hbm, 1500, rfl⟩
abbrev main_cst_134 : Ref sig .tc := ⟨.hbm, 1501, rfl⟩
abbrev main_v1361 : Ref sig .tc := ⟨.hbm, 1502, rfl⟩
abbrev main_c_135 : Ref sig .tc := ⟨.hbm, 1503, rfl⟩
abbrev main_v1362 : Ref sig .tc := ⟨.hbm, 1504, rfl⟩
abbrev main_v1363 : Ref sig .tc := ⟨.hbm, 1505, rfl⟩
abbrev main_v1364 : Ref sig .tc := ⟨.hbm, 1506, rfl⟩
abbrev main_v1365 : Ref sig .tc := ⟨.hbm, 1507, rfl⟩
abbrev main_v1366 : Ref sig .tc := ⟨.hbm, 1508, rfl⟩
abbrev main_v1367 : Ref sig .tc := ⟨.hbm, 1509, rfl⟩
abbrev main_v1368 : Ref sig .tc := ⟨.hbm, 1510, rfl⟩
abbrev main_v1369 : Ref sig .tc := ⟨.hbm, 1511, rfl⟩
abbrev main_v1370 : Ref sig .tc := ⟨.hbm, 1512, rfl⟩
abbrev main_v1371 : Ref sig .tc := ⟨.hbm, 1513, rfl⟩
abbrev main_v1372 : Ref sig .tc := ⟨.hbm, 1514, rfl⟩
abbrev main_v1373 : Ref sig .tc := ⟨.hbm, 1515, rfl⟩
abbrev main_v1374 : Ref sig .tc := ⟨.hbm, 1516, rfl⟩
abbrev main_v1375 : Ref sig .tc := ⟨.hbm, 1517, rfl⟩
abbrev main_v1376 : Ref sig .tc := ⟨.hbm, 1518, rfl⟩
abbrev main_v1377 : Ref sig .tc := ⟨.hbm, 1519, rfl⟩
abbrev main_v1378 : Ref sig .tc := ⟨.hbm, 1520, rfl⟩
abbrev main_v1379 : Ref sig .tc := ⟨.hbm, 1521, rfl⟩
abbrev main_v1380 : Ref sig .tc := ⟨.hbm, 1522, rfl⟩
abbrev main_cst_136 : Ref sig .tc := ⟨.hbm, 1523, rfl⟩
abbrev main_v1381 : Ref sig .tc := ⟨.hbm, 1524, rfl⟩
abbrev main_c_137 : Ref sig .tc := ⟨.hbm, 1525, rfl⟩
abbrev main_v1382 : Ref sig .tc := ⟨.hbm, 1526, rfl⟩
abbrev main_v1383 : Ref sig .tc := ⟨.hbm, 1527, rfl⟩
abbrev main_v1384 : Ref sig .tc := ⟨.hbm, 1528, rfl⟩
abbrev main_v1385 : Ref sig .tc := ⟨.hbm, 1529, rfl⟩
abbrev main_v1386 : Ref sig .tc := ⟨.hbm, 1530, rfl⟩
abbrev main_v1387 : Ref sig .tc := ⟨.hbm, 1531, rfl⟩
abbrev main_v1388 : Ref sig .tc := ⟨.hbm, 1532, rfl⟩
abbrev main_v1389 : Ref sig .tc := ⟨.hbm, 1533, rfl⟩
abbrev main_v1390 : Ref sig .tc := ⟨.hbm, 1534, rfl⟩
abbrev main_v1391 : Ref sig .tc := ⟨.hbm, 1535, rfl⟩
abbrev main_v1392 : Ref sig .tc := ⟨.hbm, 1536, rfl⟩
abbrev main_v1393 : Ref sig .tc := ⟨.hbm, 1537, rfl⟩
abbrev main_v1394 : Ref sig .tc := ⟨.hbm, 1538, rfl⟩
abbrev main_v1395 : Ref sig .tc := ⟨.hbm, 1539, rfl⟩
abbrev main_v1396 : Ref sig .tc := ⟨.hbm, 1540, rfl⟩
abbrev main_v1397 : Ref sig .tc := ⟨.hbm, 1541, rfl⟩
abbrev main_v1398 : Ref sig .tc := ⟨.hbm, 1542, rfl⟩
abbrev main_v1399 : Ref sig .tc := ⟨.hbm, 1543, rfl⟩
abbrev main_v1400 : Ref sig .tc := ⟨.hbm, 1544, rfl⟩
abbrev main_cst_138 : Ref sig .tc := ⟨.hbm, 1545, rfl⟩
abbrev main_v1401 : Ref sig .tc := ⟨.hbm, 1546, rfl⟩
abbrev main_c_139 : Ref sig .tc := ⟨.hbm, 1547, rfl⟩
abbrev main_v1402 : Ref sig .tc := ⟨.hbm, 1548, rfl⟩
abbrev main_v1403 : Ref sig .tc := ⟨.hbm, 1549, rfl⟩
abbrev main_v1404 : Ref sig .tc := ⟨.hbm, 1550, rfl⟩
abbrev main_v1405 : Ref sig .tc := ⟨.hbm, 1551, rfl⟩
abbrev main_v1406 : Ref sig .tc := ⟨.hbm, 1552, rfl⟩
abbrev main_v1407 : Ref sig .tc := ⟨.hbm, 1553, rfl⟩
abbrev main_v1408 : Ref sig .tc := ⟨.hbm, 1554, rfl⟩
abbrev main_v1409 : Ref sig .tc := ⟨.hbm, 1555, rfl⟩
abbrev main_v1410 : Ref sig .tc := ⟨.hbm, 1556, rfl⟩
abbrev main_v1411 : Ref sig .tc := ⟨.hbm, 1557, rfl⟩
abbrev main_v1412 : Ref sig .tc := ⟨.hbm, 1558, rfl⟩
abbrev main_v1413 : Ref sig .tc := ⟨.hbm, 1559, rfl⟩
abbrev main_v1414 : Ref sig .tc := ⟨.hbm, 1560, rfl⟩
abbrev main_v1415 : Ref sig .tc := ⟨.hbm, 1561, rfl⟩
abbrev main_v1416 : Ref sig .tc := ⟨.hbm, 1562, rfl⟩
abbrev main_v1417 : Ref sig .tc := ⟨.hbm, 1563, rfl⟩
abbrev main_v1418 : Ref sig .tc := ⟨.hbm, 1564, rfl⟩
abbrev main_v1419 : Ref sig .tc := ⟨.hbm, 1565, rfl⟩
abbrev main_v1420 : Ref sig .tc := ⟨.hbm, 1566, rfl⟩
abbrev main_cst_140 : Ref sig .tc := ⟨.hbm, 1567, rfl⟩
abbrev main_v1421 : Ref sig .tc := ⟨.hbm, 1568, rfl⟩
abbrev main_c_141 : Ref sig .tc := ⟨.hbm, 1569, rfl⟩
abbrev main_v1422 : Ref sig .tc := ⟨.hbm, 1570, rfl⟩
abbrev main_v1423 : Ref sig .tc := ⟨.hbm, 1571, rfl⟩
abbrev main_v1424 : Ref sig .tc := ⟨.hbm, 1572, rfl⟩
abbrev main_v1425 : Ref sig .tc := ⟨.hbm, 1573, rfl⟩
abbrev main_v1426 : Ref sig .tc := ⟨.hbm, 1574, rfl⟩
abbrev main_v1427 : Ref sig .tc := ⟨.hbm, 1575, rfl⟩
abbrev main_v1428 : Ref sig .tc := ⟨.hbm, 1576, rfl⟩
abbrev main_v1429 : Ref sig .tc := ⟨.hbm, 1577, rfl⟩
abbrev main_v1430 : Ref sig .tc := ⟨.hbm, 1578, rfl⟩
abbrev main_v1431 : Ref sig .tc := ⟨.hbm, 1579, rfl⟩
abbrev main_v1432 : Ref sig .tc := ⟨.hbm, 1580, rfl⟩
abbrev main_v1433 : Ref sig .tc := ⟨.hbm, 1581, rfl⟩
abbrev main_v1434 : Ref sig .tc := ⟨.hbm, 1582, rfl⟩
abbrev main_v1435 : Ref sig .tc := ⟨.hbm, 1583, rfl⟩
abbrev main_v1436 : Ref sig .tc := ⟨.hbm, 1584, rfl⟩
abbrev main_v1437 : Ref sig .tc := ⟨.hbm, 1585, rfl⟩
abbrev main_v1438 : Ref sig .tc := ⟨.hbm, 1586, rfl⟩
abbrev main_v1439 : Ref sig .tc := ⟨.hbm, 1587, rfl⟩
abbrev main_v1440 : Ref sig .tc := ⟨.hbm, 1588, rfl⟩
abbrev main_cst_142 : Ref sig .tc := ⟨.hbm, 1589, rfl⟩
abbrev main_v1441 : Ref sig .tc := ⟨.hbm, 1590, rfl⟩
abbrev main_c_143 : Ref sig .tc := ⟨.hbm, 1591, rfl⟩
abbrev main_v1442 : Ref sig .tc := ⟨.hbm, 1592, rfl⟩
abbrev main_v1443 : Ref sig .tc := ⟨.hbm, 1593, rfl⟩
abbrev main_v1444 : Ref sig .tc := ⟨.hbm, 1594, rfl⟩
abbrev main_v1445 : Ref sig .tc := ⟨.hbm, 1595, rfl⟩
abbrev main_v1446 : Ref sig .tc := ⟨.hbm, 1596, rfl⟩
abbrev main_v1447 : Ref sig .tc := ⟨.hbm, 1597, rfl⟩
abbrev main_v1448 : Ref sig .tc := ⟨.hbm, 1598, rfl⟩
abbrev main_v1449 : Ref sig .tc := ⟨.hbm, 1599, rfl⟩
abbrev main_v1450 : Ref sig .tc := ⟨.hbm, 1600, rfl⟩
abbrev main_v1451 : Ref sig .tc := ⟨.hbm, 1601, rfl⟩
abbrev main_v1452 : Ref sig .tc := ⟨.hbm, 1602, rfl⟩
abbrev main_v1453 : Ref sig .tc := ⟨.hbm, 1603, rfl⟩
abbrev main_v1454 : Ref sig .tc := ⟨.hbm, 1604, rfl⟩
abbrev main_v1455 : Ref sig .tc := ⟨.hbm, 1605, rfl⟩
abbrev main_v1456 : Ref sig .tc := ⟨.hbm, 1606, rfl⟩
abbrev main_v1457 : Ref sig .tc := ⟨.hbm, 1607, rfl⟩
abbrev main_v1458 : Ref sig .tc := ⟨.hbm, 1608, rfl⟩
abbrev main_v1459 : Ref sig .tc := ⟨.hbm, 1609, rfl⟩
abbrev main_v1460 : Ref sig .tc := ⟨.hbm, 1610, rfl⟩
abbrev main_cst_144 : Ref sig .tc := ⟨.hbm, 1611, rfl⟩
abbrev main_v1461 : Ref sig .tc := ⟨.hbm, 1612, rfl⟩
abbrev main_c_145 : Ref sig .tc := ⟨.hbm, 1613, rfl⟩
abbrev main_v1462 : Ref sig .tc := ⟨.hbm, 1614, rfl⟩
abbrev main_v1463 : Ref sig .tc := ⟨.hbm, 1615, rfl⟩
abbrev main_v1464 : Ref sig .tc := ⟨.hbm, 1616, rfl⟩
abbrev main_v1465 : Ref sig .tc := ⟨.hbm, 1617, rfl⟩
abbrev main_v1466 : Ref sig .tc := ⟨.hbm, 1618, rfl⟩
abbrev main_v1467 : Ref sig .tc := ⟨.hbm, 1619, rfl⟩
abbrev main_v1468 : Ref sig .tc := ⟨.hbm, 1620, rfl⟩
abbrev main_v1469 : Ref sig .tc := ⟨.hbm, 1621, rfl⟩
abbrev main_v1470 : Ref sig .tc := ⟨.hbm, 1622, rfl⟩
abbrev main_v1471 : Ref sig .tc := ⟨.hbm, 1623, rfl⟩
abbrev main_v1472 : Ref sig .tc := ⟨.hbm, 1624, rfl⟩
abbrev main_v1473 : Ref sig .tc := ⟨.hbm, 1625, rfl⟩
abbrev main_v1474 : Ref sig .tc := ⟨.hbm, 1626, rfl⟩
abbrev main_v1475 : Ref sig .tc := ⟨.hbm, 1627, rfl⟩
abbrev main_v1476 : Ref sig .tc := ⟨.hbm, 1628, rfl⟩
abbrev main_v1477 : Ref sig .tc := ⟨.hbm, 1629, rfl⟩
abbrev main_v1478 : Ref sig .tc := ⟨.hbm, 1630, rfl⟩
abbrev main_v1479 : Ref sig .tc := ⟨.hbm, 1631, rfl⟩
abbrev main_v1480 : Ref sig .tc := ⟨.hbm, 1632, rfl⟩
abbrev main_cst_146 : Ref sig .tc := ⟨.hbm, 1633, rfl⟩
abbrev main_v1481 : Ref sig .tc := ⟨.hbm, 1634, rfl⟩
abbrev main_c_147 : Ref sig .tc := ⟨.hbm, 1635, rfl⟩
abbrev main_v1482 : Ref sig .tc := ⟨.hbm, 1636, rfl⟩
abbrev main_v1483 : Ref sig .tc := ⟨.hbm, 1637, rfl⟩
abbrev main_v1484 : Ref sig .tc := ⟨.hbm, 1638, rfl⟩
abbrev main_v1485 : Ref sig .tc := ⟨.hbm, 1639, rfl⟩
abbrev main_v1486 : Ref sig .tc := ⟨.hbm, 1640, rfl⟩
abbrev main_v1487 : Ref sig .tc := ⟨.hbm, 1641, rfl⟩
abbrev main_v1488 : Ref sig .tc := ⟨.hbm, 1642, rfl⟩
abbrev main_v1489 : Ref sig .tc := ⟨.hbm, 1643, rfl⟩
abbrev main_v1490 : Ref sig .tc := ⟨.hbm, 1644, rfl⟩
abbrev main_v1491 : Ref sig .tc := ⟨.hbm, 1645, rfl⟩
abbrev main_v1492 : Ref sig .tc := ⟨.hbm, 1646, rfl⟩
abbrev main_v1493 : Ref sig .tc := ⟨.hbm, 1647, rfl⟩
abbrev main_v1494 : Ref sig .tc := ⟨.hbm, 1648, rfl⟩
abbrev main_v1495 : Ref sig .tc := ⟨.hbm, 1649, rfl⟩
abbrev main_v1496 : Ref sig .tc := ⟨.hbm, 1650, rfl⟩
abbrev main_v1497 : Ref sig .tc := ⟨.hbm, 1651, rfl⟩
abbrev main_v1498 : Ref sig .tc := ⟨.hbm, 1652, rfl⟩
abbrev main_v1499 : Ref sig .tc := ⟨.hbm, 1653, rfl⟩
abbrev main_v1500 : Ref sig .tc := ⟨.hbm, 1654, rfl⟩
abbrev main_cst_148 : Ref sig .tc := ⟨.hbm, 1655, rfl⟩
abbrev main_v1501 : Ref sig .tc := ⟨.hbm, 1656, rfl⟩
abbrev main_c_149 : Ref sig .tc := ⟨.hbm, 1657, rfl⟩
abbrev main_v1502 : Ref sig .tc := ⟨.hbm, 1658, rfl⟩
abbrev main_v1503 : Ref sig .tc := ⟨.hbm, 1659, rfl⟩
abbrev main_v1504 : Ref sig .tc := ⟨.hbm, 1660, rfl⟩
abbrev main_v1505 : Ref sig .tc := ⟨.hbm, 1661, rfl⟩
abbrev main_v1506 : Ref sig .tc := ⟨.hbm, 1662, rfl⟩
abbrev main_v1507 : Ref sig .tc := ⟨.hbm, 1663, rfl⟩
abbrev main_v1508 : Ref sig .tc := ⟨.hbm, 1664, rfl⟩
abbrev main_v1509 : Ref sig .tc := ⟨.hbm, 1665, rfl⟩
abbrev main_v1510 : Ref sig .tc := ⟨.hbm, 1666, rfl⟩
abbrev main_v1511 : Ref sig .tc := ⟨.hbm, 1667, rfl⟩
abbrev main_v1512 : Ref sig .tc := ⟨.hbm, 1668, rfl⟩
abbrev main_v1513 : Ref sig .tc := ⟨.hbm, 1669, rfl⟩
abbrev main_v1514 : Ref sig .tc := ⟨.hbm, 1670, rfl⟩
abbrev main_v1515 : Ref sig .tc := ⟨.hbm, 1671, rfl⟩
abbrev main_v1516 : Ref sig .tc := ⟨.hbm, 1672, rfl⟩
abbrev main_v1517 : Ref sig .tc := ⟨.hbm, 1673, rfl⟩
abbrev main_v1518 : Ref sig .tc := ⟨.hbm, 1674, rfl⟩
abbrev main_v1519 : Ref sig .tc := ⟨.hbm, 1675, rfl⟩
abbrev main_v1520 : Ref sig .tc := ⟨.hbm, 1676, rfl⟩
abbrev main_cst_150 : Ref sig .tc := ⟨.hbm, 1677, rfl⟩
abbrev main_v1521 : Ref sig .tc := ⟨.hbm, 1678, rfl⟩
abbrev main_c_151 : Ref sig .tc := ⟨.hbm, 1679, rfl⟩
abbrev main_v1522 : Ref sig .tc := ⟨.hbm, 1680, rfl⟩
abbrev main_v1523 : Ref sig .tc := ⟨.hbm, 1681, rfl⟩
abbrev main_v1524 : Ref sig .tc := ⟨.hbm, 1682, rfl⟩
abbrev main_v1525 : Ref sig .tc := ⟨.hbm, 1683, rfl⟩
abbrev main_v1526 : Ref sig .tc := ⟨.hbm, 1684, rfl⟩
abbrev main_v1527 : Ref sig .tc := ⟨.hbm, 1685, rfl⟩
abbrev main_v1528 : Ref sig .tc := ⟨.hbm, 1686, rfl⟩
abbrev main_v1529 : Ref sig .tc := ⟨.hbm, 1687, rfl⟩
abbrev main_v1530 : Ref sig .tc := ⟨.hbm, 1688, rfl⟩
abbrev main_v1531 : Ref sig .tc := ⟨.hbm, 1689, rfl⟩
abbrev main_v1532 : Ref sig .tc := ⟨.hbm, 1690, rfl⟩
abbrev main_v1533 : Ref sig .tc := ⟨.hbm, 1691, rfl⟩
abbrev main_v1534 : Ref sig .tc := ⟨.hbm, 1692, rfl⟩
abbrev main_v1535 : Ref sig .tc := ⟨.hbm, 1693, rfl⟩
abbrev main_v1536 : Ref sig .tc := ⟨.hbm, 1694, rfl⟩
abbrev main_v1537 : Ref sig .tc := ⟨.hbm, 1695, rfl⟩
abbrev main_v1538 : Ref sig .tc := ⟨.hbm, 1696, rfl⟩
abbrev main_v1539 : Ref sig .tc := ⟨.hbm, 1697, rfl⟩
abbrev main_v1540 : Ref sig .tc := ⟨.hbm, 1698, rfl⟩
abbrev main_cst_152 : Ref sig .tc := ⟨.hbm, 1699, rfl⟩
abbrev main_v1541 : Ref sig .tc := ⟨.hbm, 1700, rfl⟩
abbrev main_c_153 : Ref sig .tc := ⟨.hbm, 1701, rfl⟩
abbrev main_v1542 : Ref sig .tc := ⟨.hbm, 1702, rfl⟩
abbrev main_v1543 : Ref sig .tc := ⟨.hbm, 1703, rfl⟩
abbrev main_v1544 : Ref sig .tc := ⟨.hbm, 1704, rfl⟩
abbrev main_v1545 : Ref sig .tc := ⟨.hbm, 1705, rfl⟩
abbrev main_v1546 : Ref sig .tc := ⟨.hbm, 1706, rfl⟩
abbrev main_v1547 : Ref sig .tc := ⟨.hbm, 1707, rfl⟩
abbrev main_v1548 : Ref sig .tc := ⟨.hbm, 1708, rfl⟩
abbrev main_v1549 : Ref sig .tc := ⟨.hbm, 1709, rfl⟩
abbrev main_v1550 : Ref sig .tc := ⟨.hbm, 1710, rfl⟩
abbrev main_v1551 : Ref sig .tc := ⟨.hbm, 1711, rfl⟩
abbrev main_v1552 : Ref sig .tc := ⟨.hbm, 1712, rfl⟩
abbrev main_v1553 : Ref sig .tc := ⟨.hbm, 1713, rfl⟩
abbrev main_v1554 : Ref sig .tc := ⟨.hbm, 1714, rfl⟩
abbrev main_v1555 : Ref sig .tc := ⟨.hbm, 1715, rfl⟩
abbrev main_v1556 : Ref sig .tc := ⟨.hbm, 1716, rfl⟩
abbrev main_v1557 : Ref sig .tc := ⟨.hbm, 1717, rfl⟩
abbrev main_v1558 : Ref sig .tc := ⟨.hbm, 1718, rfl⟩
abbrev main_v1559 : Ref sig .tc := ⟨.hbm, 1719, rfl⟩
abbrev main_v1560 : Ref sig .tc := ⟨.hbm, 1720, rfl⟩
abbrev main_cst_154 : Ref sig .tc := ⟨.hbm, 1721, rfl⟩
abbrev main_v1561 : Ref sig .tc := ⟨.hbm, 1722, rfl⟩
abbrev main_c_155 : Ref sig .tc := ⟨.hbm, 1723, rfl⟩
abbrev main_v1562 : Ref sig .tc := ⟨.hbm, 1724, rfl⟩
abbrev main_v1563 : Ref sig .tc := ⟨.hbm, 1725, rfl⟩
abbrev main_v1564 : Ref sig .tc := ⟨.hbm, 1726, rfl⟩
abbrev main_v1565 : Ref sig .tc := ⟨.hbm, 1727, rfl⟩
abbrev main_v1566 : Ref sig .tc := ⟨.hbm, 1728, rfl⟩
abbrev main_v1567 : Ref sig .tc := ⟨.hbm, 1729, rfl⟩
abbrev main_v1568 : Ref sig .tc := ⟨.hbm, 1730, rfl⟩
abbrev main_v1569 : Ref sig .tc := ⟨.hbm, 1731, rfl⟩
abbrev main_v1570 : Ref sig .tc := ⟨.hbm, 1732, rfl⟩
abbrev main_v1571 : Ref sig .tc := ⟨.hbm, 1733, rfl⟩
abbrev main_v1572 : Ref sig .tc := ⟨.hbm, 1734, rfl⟩
abbrev main_v1573 : Ref sig .tc := ⟨.hbm, 1735, rfl⟩
abbrev main_v1574 : Ref sig .tc := ⟨.hbm, 1736, rfl⟩
abbrev main_v1575 : Ref sig .tc := ⟨.hbm, 1737, rfl⟩
abbrev main_v1576 : Ref sig .tc := ⟨.hbm, 1738, rfl⟩
abbrev main_v1577 : Ref sig .tc := ⟨.hbm, 1739, rfl⟩
abbrev main_v1578 : Ref sig .tc := ⟨.hbm, 1740, rfl⟩
abbrev main_v1579 : Ref sig .tc := ⟨.hbm, 1741, rfl⟩
abbrev main_v1580 : Ref sig .tc := ⟨.hbm, 1742, rfl⟩
abbrev main_cst_156 : Ref sig .tc := ⟨.hbm, 1743, rfl⟩
abbrev main_v1581 : Ref sig .tc := ⟨.hbm, 1744, rfl⟩
abbrev main_c_157 : Ref sig .tc := ⟨.hbm, 1745, rfl⟩
abbrev main_v1582 : Ref sig .tc := ⟨.hbm, 1746, rfl⟩
abbrev main_v1583 : Ref sig .tc := ⟨.hbm, 1747, rfl⟩
abbrev main_v1584 : Ref sig .tc := ⟨.hbm, 1748, rfl⟩
abbrev main_v1585 : Ref sig .tc := ⟨.hbm, 1749, rfl⟩
abbrev main_v1586 : Ref sig .tc := ⟨.hbm, 1750, rfl⟩
abbrev main_v1587 : Ref sig .tc := ⟨.hbm, 1751, rfl⟩
abbrev main_v1588 : Ref sig .tc := ⟨.hbm, 1752, rfl⟩
abbrev main_v1589 : Ref sig .tc := ⟨.hbm, 1753, rfl⟩
abbrev main_v1590 : Ref sig .tc := ⟨.hbm, 1754, rfl⟩
abbrev main_v1591 : Ref sig .tc := ⟨.hbm, 1755, rfl⟩
abbrev main_v1592 : Ref sig .tc := ⟨.hbm, 1756, rfl⟩
abbrev main_v1593 : Ref sig .tc := ⟨.hbm, 1757, rfl⟩
abbrev main_v1594 : Ref sig .tc := ⟨.hbm, 1758, rfl⟩
abbrev main_v1595 : Ref sig .tc := ⟨.hbm, 1759, rfl⟩
abbrev main_v1596 : Ref sig .tc := ⟨.hbm, 1760, rfl⟩
abbrev main_v1597 : Ref sig .tc := ⟨.hbm, 1761, rfl⟩
abbrev main_v1598 : Ref sig .tc := ⟨.hbm, 1762, rfl⟩
abbrev main_v1599 : Ref sig .tc := ⟨.hbm, 1763, rfl⟩
abbrev main_v1600 : Ref sig .tc := ⟨.hbm, 1764, rfl⟩
abbrev main_cst_158 : Ref sig .tc := ⟨.hbm, 1765, rfl⟩
abbrev main_v1601 : Ref sig .tc := ⟨.hbm, 1766, rfl⟩
abbrev main_c_159 : Ref sig .tc := ⟨.hbm, 1767, rfl⟩
abbrev main_v1602 : Ref sig .tc := ⟨.hbm, 1768, rfl⟩
abbrev main_v1603 : Ref sig .tc := ⟨.hbm, 1769, rfl⟩
abbrev main_v1604 : Ref sig .tc := ⟨.hbm, 1770, rfl⟩
abbrev main_v1605 : Ref sig .tc := ⟨.hbm, 1771, rfl⟩
abbrev main_v1606 : Ref sig .tc := ⟨.hbm, 1772, rfl⟩
abbrev main_v1607 : Ref sig .tc := ⟨.hbm, 1773, rfl⟩
abbrev main_v1608 : Ref sig .tc := ⟨.hbm, 1774, rfl⟩
abbrev main_v1609 : Ref sig .tc := ⟨.hbm, 1775, rfl⟩
abbrev main_v1610 : Ref sig .tc := ⟨.hbm, 1776, rfl⟩
abbrev main_v1611 : Ref sig .tc := ⟨.hbm, 1777, rfl⟩
abbrev main_v1612 : Ref sig .tc := ⟨.hbm, 1778, rfl⟩
abbrev main_v1613 : Ref sig .tc := ⟨.hbm, 1779, rfl⟩
abbrev main_v1614 : Ref sig .tc := ⟨.hbm, 1780, rfl⟩
abbrev main_v1615 : Ref sig .tc := ⟨.hbm, 1781, rfl⟩
abbrev main_v1616 : Ref sig .tc := ⟨.hbm, 1782, rfl⟩
abbrev main_v1617 : Ref sig .tc := ⟨.hbm, 1783, rfl⟩
abbrev main_v1618 : Ref sig .tc := ⟨.hbm, 1784, rfl⟩
abbrev main_v1619 : Ref sig .tc := ⟨.hbm, 1785, rfl⟩
abbrev main_v1620 : Ref sig .tc := ⟨.hbm, 1786, rfl⟩
abbrev main_cst_160 : Ref sig .tc := ⟨.hbm, 1787, rfl⟩
abbrev main_v1621 : Ref sig .tc := ⟨.hbm, 1788, rfl⟩
abbrev main_c_161 : Ref sig .tc := ⟨.hbm, 1789, rfl⟩
abbrev main_v1622 : Ref sig .tc := ⟨.hbm, 1790, rfl⟩
abbrev main_v1623 : Ref sig .tc := ⟨.hbm, 1791, rfl⟩
abbrev main_v1624 : Ref sig .tc := ⟨.hbm, 1792, rfl⟩
abbrev main_v1625 : Ref sig .tc := ⟨.hbm, 1793, rfl⟩
abbrev main_v1626 : Ref sig .tc := ⟨.hbm, 1794, rfl⟩
abbrev main_v1627 : Ref sig .tc := ⟨.hbm, 1795, rfl⟩
abbrev main_v1628 : Ref sig .tc := ⟨.hbm, 1796, rfl⟩
abbrev main_v1629 : Ref sig .tc := ⟨.hbm, 1797, rfl⟩
abbrev main_v1630 : Ref sig .tc := ⟨.hbm, 1798, rfl⟩
abbrev main_v1631 : Ref sig .tc := ⟨.hbm, 1799, rfl⟩
abbrev main_v1632 : Ref sig .tc := ⟨.hbm, 1800, rfl⟩
abbrev main_v1633 : Ref sig .tc := ⟨.hbm, 1801, rfl⟩
abbrev main_v1634 : Ref sig .tc := ⟨.hbm, 1802, rfl⟩
abbrev main_v1635 : Ref sig .tc := ⟨.hbm, 1803, rfl⟩
abbrev main_v1636 : Ref sig .tc := ⟨.hbm, 1804, rfl⟩
abbrev main_v1637 : Ref sig .tc := ⟨.hbm, 1805, rfl⟩
abbrev main_v1638 : Ref sig .tc := ⟨.hbm, 1806, rfl⟩
abbrev main_v1639 : Ref sig .tc := ⟨.hbm, 1807, rfl⟩
abbrev main_v1640 : Ref sig .tc := ⟨.hbm, 1808, rfl⟩
abbrev main_cst_162 : Ref sig .tc := ⟨.hbm, 1809, rfl⟩
abbrev main_v1641 : Ref sig .tc := ⟨.hbm, 1810, rfl⟩
abbrev main_c_163 : Ref sig .tc := ⟨.hbm, 1811, rfl⟩
abbrev main_v1642 : Ref sig .tc := ⟨.hbm, 1812, rfl⟩
abbrev main_v1643 : Ref sig .tc := ⟨.hbm, 1813, rfl⟩
abbrev main_v1644 : Ref sig .tc := ⟨.hbm, 1814, rfl⟩
abbrev main_v1645 : Ref sig .tc := ⟨.hbm, 1815, rfl⟩
abbrev main_v1646 : Ref sig .tc := ⟨.hbm, 1816, rfl⟩
abbrev main_v1647 : Ref sig .tc := ⟨.hbm, 1817, rfl⟩
abbrev main_v1648 : Ref sig .tc := ⟨.hbm, 1818, rfl⟩
abbrev main_v1649 : Ref sig .tc := ⟨.hbm, 1819, rfl⟩
abbrev main_v1650 : Ref sig .tc := ⟨.hbm, 1820, rfl⟩
abbrev main_v1651 : Ref sig .tc := ⟨.hbm, 1821, rfl⟩
abbrev main_v1652 : Ref sig .tc := ⟨.hbm, 1822, rfl⟩
abbrev main_v1653 : Ref sig .tc := ⟨.hbm, 1823, rfl⟩
abbrev main_v1654 : Ref sig .tc := ⟨.hbm, 1824, rfl⟩
abbrev main_v1655 : Ref sig .tc := ⟨.hbm, 1825, rfl⟩
abbrev main_v1656 : Ref sig .tc := ⟨.hbm, 1826, rfl⟩
abbrev main_v1657 : Ref sig .tc := ⟨.hbm, 1827, rfl⟩
abbrev main_v1658 : Ref sig .tc := ⟨.hbm, 1828, rfl⟩
abbrev main_v1659 : Ref sig .tc := ⟨.hbm, 1829, rfl⟩
abbrev main_v1660 : Ref sig .tc := ⟨.hbm, 1830, rfl⟩
abbrev main_cst_164 : Ref sig .tc := ⟨.hbm, 1831, rfl⟩
abbrev main_v1661 : Ref sig .tc := ⟨.hbm, 1832, rfl⟩
abbrev main_c_165 : Ref sig .tc := ⟨.hbm, 1833, rfl⟩
abbrev main_v1662 : Ref sig .tc := ⟨.hbm, 1834, rfl⟩
abbrev main_v1663 : Ref sig .tc := ⟨.hbm, 1835, rfl⟩
abbrev main_v1664 : Ref sig .tc := ⟨.hbm, 1836, rfl⟩
abbrev main_v1665 : Ref sig .tc := ⟨.hbm, 1837, rfl⟩
abbrev main_v1666 : Ref sig .tc := ⟨.hbm, 1838, rfl⟩
abbrev main_v1667 : Ref sig .tc := ⟨.hbm, 1839, rfl⟩
abbrev main_v1668 : Ref sig .tc := ⟨.hbm, 1840, rfl⟩
abbrev main_v1669 : Ref sig .tc := ⟨.hbm, 1841, rfl⟩
abbrev main_v1670 : Ref sig .tc := ⟨.hbm, 1842, rfl⟩
abbrev main_v1671 : Ref sig .tc := ⟨.hbm, 1843, rfl⟩
abbrev main_v1672 : Ref sig .tc := ⟨.hbm, 1844, rfl⟩
abbrev main_v1673 : Ref sig .tc := ⟨.hbm, 1845, rfl⟩
abbrev main_v1674 : Ref sig .tc := ⟨.hbm, 1846, rfl⟩
abbrev main_v1675 : Ref sig .tc := ⟨.hbm, 1847, rfl⟩
abbrev main_v1676 : Ref sig .tc := ⟨.hbm, 1848, rfl⟩
abbrev main_v1677 : Ref sig .tc := ⟨.hbm, 1849, rfl⟩
abbrev main_v1678 : Ref sig .tc := ⟨.hbm, 1850, rfl⟩
abbrev main_v1679 : Ref sig .tc := ⟨.hbm, 1851, rfl⟩
abbrev main_v1680 : Ref sig .tc := ⟨.hbm, 1852, rfl⟩
abbrev main_cst_166 : Ref sig .tc := ⟨.hbm, 1853, rfl⟩
abbrev main_v1681 : Ref sig .tc := ⟨.hbm, 1854, rfl⟩
abbrev main_c_167 : Ref sig .tc := ⟨.hbm, 1855, rfl⟩
abbrev main_v1682 : Ref sig .tc := ⟨.hbm, 1856, rfl⟩
abbrev main_v1683 : Ref sig .tc := ⟨.hbm, 1857, rfl⟩
abbrev main_v1684 : Ref sig .tc := ⟨.hbm, 1858, rfl⟩
abbrev main_v1685 : Ref sig .tc := ⟨.hbm, 1859, rfl⟩
abbrev main_v1686 : Ref sig .tc := ⟨.hbm, 1860, rfl⟩
abbrev main_v1687 : Ref sig .tc := ⟨.hbm, 1861, rfl⟩
abbrev main_v1688 : Ref sig .tc := ⟨.hbm, 1862, rfl⟩
abbrev main_v1689 : Ref sig .tc := ⟨.hbm, 1863, rfl⟩
abbrev main_v1690 : Ref sig .tc := ⟨.hbm, 1864, rfl⟩
abbrev main_v1691 : Ref sig .tc := ⟨.hbm, 1865, rfl⟩
abbrev main_v1692 : Ref sig .tc := ⟨.hbm, 1866, rfl⟩
abbrev main_v1693 : Ref sig .tc := ⟨.hbm, 1867, rfl⟩
abbrev main_v1694 : Ref sig .tc := ⟨.hbm, 1868, rfl⟩
abbrev main_v1695 : Ref sig .tc := ⟨.hbm, 1869, rfl⟩
abbrev main_v1696 : Ref sig .tc := ⟨.hbm, 1870, rfl⟩
abbrev main_v1697 : Ref sig .tc := ⟨.hbm, 1871, rfl⟩
abbrev main_v1698 : Ref sig .tc := ⟨.hbm, 1872, rfl⟩
abbrev main_v1699 : Ref sig .tc := ⟨.hbm, 1873, rfl⟩
abbrev main_v1700 : Ref sig .tc := ⟨.hbm, 1874, rfl⟩
abbrev main_cst_168 : Ref sig .tc := ⟨.hbm, 1875, rfl⟩
abbrev main_v1701 : Ref sig .tc := ⟨.hbm, 1876, rfl⟩
abbrev main_c_169 : Ref sig .tc := ⟨.hbm, 1877, rfl⟩
abbrev main_v1702 : Ref sig .tc := ⟨.hbm, 1878, rfl⟩
abbrev main_v1703 : Ref sig .tc := ⟨.hbm, 1879, rfl⟩
abbrev main_v1704 : Ref sig .tc := ⟨.hbm, 1880, rfl⟩
abbrev main_v1705 : Ref sig .tc := ⟨.hbm, 1881, rfl⟩
abbrev main_v1706 : Ref sig .tc := ⟨.hbm, 1882, rfl⟩
abbrev main_v1707 : Ref sig .tc := ⟨.hbm, 1883, rfl⟩
abbrev main_v1708 : Ref sig .tc := ⟨.hbm, 1884, rfl⟩
abbrev main_v1709 : Ref sig .tc := ⟨.hbm, 1885, rfl⟩
abbrev main_v1710 : Ref sig .tc := ⟨.hbm, 1886, rfl⟩
abbrev main_v1711 : Ref sig .tc := ⟨.hbm, 1887, rfl⟩
abbrev main_v1712 : Ref sig .tc := ⟨.hbm, 1888, rfl⟩
abbrev main_v1713 : Ref sig .tc := ⟨.hbm, 1889, rfl⟩
abbrev main_v1714 : Ref sig .tc := ⟨.hbm, 1890, rfl⟩
abbrev main_v1715 : Ref sig .tc := ⟨.hbm, 1891, rfl⟩
abbrev main_v1716 : Ref sig .tc := ⟨.hbm, 1892, rfl⟩
abbrev main_v1717 : Ref sig .tc := ⟨.hbm, 1893, rfl⟩
abbrev main_v1718 : Ref sig .tc := ⟨.hbm, 1894, rfl⟩
abbrev main_v1719 : Ref sig .tc := ⟨.hbm, 1895, rfl⟩
abbrev main_v1720 : Ref sig .tc := ⟨.hbm, 1896, rfl⟩
abbrev main_cst_170 : Ref sig .tc := ⟨.hbm, 1897, rfl⟩
abbrev main_v1721 : Ref sig .tc := ⟨.hbm, 1898, rfl⟩
abbrev main_c_171 : Ref sig .tc := ⟨.hbm, 1899, rfl⟩
abbrev main_v1722 : Ref sig .tc := ⟨.hbm, 1900, rfl⟩
abbrev main_v1723 : Ref sig .tc := ⟨.hbm, 1901, rfl⟩
abbrev main_v1724 : Ref sig .tc := ⟨.hbm, 1902, rfl⟩
abbrev main_v1725 : Ref sig .tc := ⟨.hbm, 1903, rfl⟩
abbrev main_v1726 : Ref sig .tc := ⟨.hbm, 1904, rfl⟩
abbrev main_v1727 : Ref sig .tc := ⟨.hbm, 1905, rfl⟩
abbrev main_v1728 : Ref sig .tc := ⟨.hbm, 1906, rfl⟩
abbrev main_v1729 : Ref sig .tc := ⟨.hbm, 1907, rfl⟩
abbrev main_v1730 : Ref sig .tc := ⟨.hbm, 1908, rfl⟩
abbrev main_v1731 : Ref sig .tc := ⟨.hbm, 1909, rfl⟩
abbrev main_v1732 : Ref sig .tc := ⟨.hbm, 1910, rfl⟩
abbrev main_v1733 : Ref sig .tc := ⟨.hbm, 1911, rfl⟩
abbrev main_v1734 : Ref sig .tc := ⟨.hbm, 1912, rfl⟩
abbrev main_v1735 : Ref sig .tc := ⟨.hbm, 1913, rfl⟩
abbrev main_v1736 : Ref sig .tc := ⟨.hbm, 1914, rfl⟩
abbrev main_v1737 : Ref sig .tc := ⟨.hbm, 1915, rfl⟩
abbrev main_v1738 : Ref sig .tc := ⟨.hbm, 1916, rfl⟩
abbrev main_v1739 : Ref sig .tc := ⟨.hbm, 1917, rfl⟩
abbrev main_v1740 : Ref sig .tc := ⟨.hbm, 1918, rfl⟩
abbrev main_cst_172 : Ref sig .tc := ⟨.hbm, 1919, rfl⟩
abbrev main_v1741 : Ref sig .tc := ⟨.hbm, 1920, rfl⟩
abbrev main_c_173 : Ref sig .tc := ⟨.hbm, 1921, rfl⟩
abbrev main_v1742 : Ref sig .tc := ⟨.hbm, 1922, rfl⟩
abbrev main_v1743 : Ref sig .tc := ⟨.hbm, 1923, rfl⟩
abbrev main_v1744 : Ref sig .tc := ⟨.hbm, 1924, rfl⟩
abbrev main_v1745 : Ref sig .tc := ⟨.hbm, 1925, rfl⟩
abbrev main_v1746 : Ref sig .tc := ⟨.hbm, 1926, rfl⟩
abbrev main_v1747 : Ref sig .tc := ⟨.hbm, 1927, rfl⟩
abbrev main_v1748 : Ref sig .tc := ⟨.hbm, 1928, rfl⟩
abbrev main_v1749 : Ref sig .tc := ⟨.hbm, 1929, rfl⟩
abbrev main_v1750 : Ref sig .tc := ⟨.hbm, 1930, rfl⟩
abbrev main_v1751 : Ref sig .tc := ⟨.hbm, 1931, rfl⟩
abbrev main_v1752 : Ref sig .tc := ⟨.hbm, 1932, rfl⟩
abbrev main_v1753 : Ref sig .tc := ⟨.hbm, 1933, rfl⟩
abbrev main_v1754 : Ref sig .tc := ⟨.hbm, 1934, rfl⟩
abbrev main_v1755 : Ref sig .tc := ⟨.hbm, 1935, rfl⟩
abbrev main_v1756 : Ref sig .tc := ⟨.hbm, 1936, rfl⟩
abbrev main_v1757 : Ref sig .tc := ⟨.hbm, 1937, rfl⟩
abbrev main_v1758 : Ref sig .tc := ⟨.hbm, 1938, rfl⟩
abbrev main_v1759 : Ref sig .tc := ⟨.hbm, 1939, rfl⟩
abbrev main_v1760 : Ref sig .tc := ⟨.hbm, 1940, rfl⟩
abbrev main_cst_174 : Ref sig .tc := ⟨.hbm, 1941, rfl⟩
abbrev main_v1761 : Ref sig .tc := ⟨.hbm, 1942, rfl⟩
abbrev main_c_175 : Ref sig .tc := ⟨.hbm, 1943, rfl⟩
abbrev main_v1762 : Ref sig .tc := ⟨.hbm, 1944, rfl⟩
abbrev main_v1763 : Ref sig .tc := ⟨.hbm, 1945, rfl⟩
abbrev main_v1764 : Ref sig .tc := ⟨.hbm, 1946, rfl⟩
abbrev main_v1765 : Ref sig .tc := ⟨.hbm, 1947, rfl⟩
abbrev main_v1766 : Ref sig .tc := ⟨.hbm, 1948, rfl⟩
abbrev main_v1767 : Ref sig .tc := ⟨.hbm, 1949, rfl⟩
abbrev main_v1768 : Ref sig .tc := ⟨.hbm, 1950, rfl⟩
abbrev main_v1769 : Ref sig .tc := ⟨.hbm, 1951, rfl⟩
abbrev main_v1770 : Ref sig .tc := ⟨.hbm, 1952, rfl⟩
abbrev main_v1771 : Ref sig .tc := ⟨.hbm, 1953, rfl⟩
abbrev main_v1772 : Ref sig .tc := ⟨.hbm, 1954, rfl⟩
abbrev main_v1773 : Ref sig .tc := ⟨.hbm, 1955, rfl⟩
abbrev main_v1774 : Ref sig .tc := ⟨.hbm, 1956, rfl⟩
abbrev main_v1775 : Ref sig .tc := ⟨.hbm, 1957, rfl⟩
abbrev main_v1776 : Ref sig .tc := ⟨.hbm, 1958, rfl⟩
abbrev main_v1777 : Ref sig .tc := ⟨.hbm, 1959, rfl⟩
abbrev main_v1778 : Ref sig .tc := ⟨.hbm, 1960, rfl⟩
abbrev main_v1779 : Ref sig .tc := ⟨.hbm, 1961, rfl⟩
abbrev main_v1780 : Ref sig .tc := ⟨.hbm, 1962, rfl⟩
abbrev main_cst_176 : Ref sig .tc := ⟨.hbm, 1963, rfl⟩
abbrev main_v1781 : Ref sig .tc := ⟨.hbm, 1964, rfl⟩
abbrev main_c_177 : Ref sig .tc := ⟨.hbm, 1965, rfl⟩
abbrev main_v1782 : Ref sig .tc := ⟨.hbm, 1966, rfl⟩
abbrev main_v1783 : Ref sig .tc := ⟨.hbm, 1967, rfl⟩
abbrev main_v1784 : Ref sig .tc := ⟨.hbm, 1968, rfl⟩
abbrev main_v1785 : Ref sig .tc := ⟨.hbm, 1969, rfl⟩
abbrev main_v1786 : Ref sig .tc := ⟨.hbm, 1970, rfl⟩
abbrev main_v1787 : Ref sig .tc := ⟨.hbm, 1971, rfl⟩
abbrev main_v1788 : Ref sig .tc := ⟨.hbm, 1972, rfl⟩
abbrev main_v1789 : Ref sig .tc := ⟨.hbm, 1973, rfl⟩
abbrev main_v1790 : Ref sig .tc := ⟨.hbm, 1974, rfl⟩
abbrev main_v1791 : Ref sig .tc := ⟨.hbm, 1975, rfl⟩
abbrev main_v1792 : Ref sig .tc := ⟨.hbm, 1976, rfl⟩
abbrev main_v1793 : Ref sig .tc := ⟨.hbm, 1977, rfl⟩
abbrev main_v1794 : Ref sig .tc := ⟨.hbm, 1978, rfl⟩
abbrev main_v1795 : Ref sig .tc := ⟨.hbm, 1979, rfl⟩
abbrev main_v1796 : Ref sig .tc := ⟨.hbm, 1980, rfl⟩
abbrev main_v1797 : Ref sig .tc := ⟨.hbm, 1981, rfl⟩
abbrev main_v1798 : Ref sig .tc := ⟨.hbm, 1982, rfl⟩
abbrev main_v1799 : Ref sig .tc := ⟨.hbm, 1983, rfl⟩
abbrev main_v1800 : Ref sig .tc := ⟨.hbm, 1984, rfl⟩
abbrev main_cst_178 : Ref sig .tc := ⟨.hbm, 1985, rfl⟩
abbrev main_v1801 : Ref sig .tc := ⟨.hbm, 1986, rfl⟩
abbrev main_c_179 : Ref sig .tc := ⟨.hbm, 1987, rfl⟩
abbrev main_v1802 : Ref sig .tc := ⟨.hbm, 1988, rfl⟩
abbrev main_v1803 : Ref sig .tc := ⟨.hbm, 1989, rfl⟩
abbrev main_v1804 : Ref sig .tc := ⟨.hbm, 1990, rfl⟩
abbrev main_v1805 : Ref sig .tc := ⟨.hbm, 1991, rfl⟩
abbrev main_v1806 : Ref sig .tc := ⟨.hbm, 1992, rfl⟩
abbrev main_v1807 : Ref sig .tc := ⟨.hbm, 1993, rfl⟩
abbrev main_v1808 : Ref sig .tc := ⟨.hbm, 1994, rfl⟩
abbrev main_v1809 : Ref sig .tc := ⟨.hbm, 1995, rfl⟩
abbrev main_v1810 : Ref sig .tc := ⟨.hbm, 1996, rfl⟩
abbrev main_v1811 : Ref sig .tc := ⟨.hbm, 1997, rfl⟩
abbrev main_v1812 : Ref sig .tc := ⟨.hbm, 1998, rfl⟩
abbrev main_v1813 : Ref sig .tc := ⟨.hbm, 1999, rfl⟩
abbrev main_v1814 : Ref sig .tc := ⟨.hbm, 2000, rfl⟩
abbrev main_v1815 : Ref sig .tc := ⟨.hbm, 2001, rfl⟩
abbrev main_v1816 : Ref sig .tc := ⟨.hbm, 2002, rfl⟩
abbrev main_v1817 : Ref sig .tc := ⟨.hbm, 2003, rfl⟩
abbrev main_v1818 : Ref sig .tc := ⟨.hbm, 2004, rfl⟩
abbrev main_v1819 : Ref sig .tc := ⟨.hbm, 2005, rfl⟩
abbrev main_v1820 : Ref sig .tc := ⟨.hbm, 2006, rfl⟩
abbrev main_cst_180 : Ref sig .tc := ⟨.hbm, 2007, rfl⟩
abbrev main_v1821 : Ref sig .tc := ⟨.hbm, 2008, rfl⟩
abbrev main_c_181 : Ref sig .tc := ⟨.hbm, 2009, rfl⟩
abbrev main_v1822 : Ref sig .tc := ⟨.hbm, 2010, rfl⟩
abbrev main_v1823 : Ref sig .tc := ⟨.hbm, 2011, rfl⟩
abbrev main_v1824 : Ref sig .tc := ⟨.hbm, 2012, rfl⟩
abbrev main_v1825 : Ref sig .tc := ⟨.hbm, 2013, rfl⟩
abbrev main_v1826 : Ref sig .tc := ⟨.hbm, 2014, rfl⟩
abbrev main_v1827 : Ref sig .tc := ⟨.hbm, 2015, rfl⟩
abbrev main_v1828 : Ref sig .tc := ⟨.hbm, 2016, rfl⟩
abbrev main_v1829 : Ref sig .tc := ⟨.hbm, 2017, rfl⟩
abbrev main_v1830 : Ref sig .tc := ⟨.hbm, 2018, rfl⟩
abbrev main_v1831 : Ref sig .tc := ⟨.hbm, 2019, rfl⟩
abbrev main_v1832 : Ref sig .tc := ⟨.hbm, 2020, rfl⟩
abbrev main_v1833 : Ref sig .tc := ⟨.hbm, 2021, rfl⟩
abbrev main_v1834 : Ref sig .tc := ⟨.hbm, 2022, rfl⟩
abbrev main_v1835 : Ref sig .tc := ⟨.hbm, 2023, rfl⟩
abbrev main_v1836 : Ref sig .tc := ⟨.hbm, 2024, rfl⟩
abbrev main_v1837 : Ref sig .tc := ⟨.hbm, 2025, rfl⟩
abbrev main_v1838 : Ref sig .tc := ⟨.hbm, 2026, rfl⟩
abbrev main_v1839 : Ref sig .tc := ⟨.hbm, 2027, rfl⟩
abbrev main_v1840 : Ref sig .tc := ⟨.hbm, 2028, rfl⟩
abbrev main_cst_182 : Ref sig .tc := ⟨.hbm, 2029, rfl⟩
abbrev main_v1841 : Ref sig .tc := ⟨.hbm, 2030, rfl⟩
abbrev main_c_183 : Ref sig .tc := ⟨.hbm, 2031, rfl⟩
abbrev main_v1842 : Ref sig .tc := ⟨.hbm, 2032, rfl⟩
abbrev main_v1843 : Ref sig .tc := ⟨.hbm, 2033, rfl⟩
abbrev main_v1844 : Ref sig .tc := ⟨.hbm, 2034, rfl⟩
abbrev main_v1845 : Ref sig .tc := ⟨.hbm, 2035, rfl⟩
abbrev main_v1846 : Ref sig .tc := ⟨.hbm, 2036, rfl⟩
abbrev main_v1847 : Ref sig .tc := ⟨.hbm, 2037, rfl⟩
abbrev main_v1848 : Ref sig .tc := ⟨.hbm, 2038, rfl⟩
abbrev main_v1849 : Ref sig .tc := ⟨.hbm, 2039, rfl⟩
abbrev main_v1850 : Ref sig .tc := ⟨.hbm, 2040, rfl⟩
abbrev main_v1851 : Ref sig .tc := ⟨.hbm, 2041, rfl⟩
abbrev main_v1852 : Ref sig .tc := ⟨.hbm, 2042, rfl⟩
abbrev main_v1853 : Ref sig .tc := ⟨.hbm, 2043, rfl⟩
abbrev main_v1854 : Ref sig .tc := ⟨.hbm, 2044, rfl⟩
abbrev main_v1855 : Ref sig .tc := ⟨.hbm, 2045, rfl⟩
abbrev main_v1856 : Ref sig .tc := ⟨.hbm, 2046, rfl⟩
abbrev main_v1857 : Ref sig .tc := ⟨.hbm, 2047, rfl⟩
abbrev main_v1858 : Ref sig .tc := ⟨.hbm, 2048, rfl⟩
abbrev main_v1859 : Ref sig .tc := ⟨.hbm, 2049, rfl⟩
abbrev main_v1860 : Ref sig .tc := ⟨.hbm, 2050, rfl⟩
abbrev main_cst_184 : Ref sig .tc := ⟨.hbm, 2051, rfl⟩
abbrev main_v1861 : Ref sig .tc := ⟨.hbm, 2052, rfl⟩
abbrev main_c_185 : Ref sig .tc := ⟨.hbm, 2053, rfl⟩
abbrev main_v1862 : Ref sig .tc := ⟨.hbm, 2054, rfl⟩
abbrev main_v1863 : Ref sig .tc := ⟨.hbm, 2055, rfl⟩
abbrev main_v1864 : Ref sig .tc := ⟨.hbm, 2056, rfl⟩
abbrev main_v1865 : Ref sig .tc := ⟨.hbm, 2057, rfl⟩
abbrev main_v1866 : Ref sig .tc := ⟨.hbm, 2058, rfl⟩
abbrev main_v1867 : Ref sig .tc := ⟨.hbm, 2059, rfl⟩
abbrev main_v1868 : Ref sig .tc := ⟨.hbm, 2060, rfl⟩
abbrev main_v1869 : Ref sig .tc := ⟨.hbm, 2061, rfl⟩
abbrev main_v1870 : Ref sig .tc := ⟨.hbm, 2062, rfl⟩
abbrev main_v1871 : Ref sig .tc := ⟨.hbm, 2063, rfl⟩
abbrev main_v1872 : Ref sig .tc := ⟨.hbm, 2064, rfl⟩
abbrev main_v1873 : Ref sig .tc := ⟨.hbm, 2065, rfl⟩
abbrev main_v1874 : Ref sig .tc := ⟨.hbm, 2066, rfl⟩
abbrev main_v1875 : Ref sig .tc := ⟨.hbm, 2067, rfl⟩
abbrev main_v1876 : Ref sig .tc := ⟨.hbm, 2068, rfl⟩
abbrev main_v1877 : Ref sig .tc := ⟨.hbm, 2069, rfl⟩
abbrev main_v1878 : Ref sig .tc := ⟨.hbm, 2070, rfl⟩
abbrev main_v1879 : Ref sig .tc := ⟨.hbm, 2071, rfl⟩
abbrev main_v1880 : Ref sig .tc := ⟨.hbm, 2072, rfl⟩
abbrev main_cst_186 : Ref sig .tc := ⟨.hbm, 2073, rfl⟩
abbrev main_v1881 : Ref sig .tc := ⟨.hbm, 2074, rfl⟩
abbrev main_c_187 : Ref sig .tc := ⟨.hbm, 2075, rfl⟩
abbrev main_v1882 : Ref sig .tc := ⟨.hbm, 2076, rfl⟩
abbrev main_v1883 : Ref sig .tc := ⟨.hbm, 2077, rfl⟩
abbrev main_v1884 : Ref sig .tc := ⟨.hbm, 2078, rfl⟩
abbrev main_v1885 : Ref sig .tc := ⟨.hbm, 2079, rfl⟩
abbrev main_v1886 : Ref sig .tc := ⟨.hbm, 2080, rfl⟩
abbrev main_v1887 : Ref sig .tc := ⟨.hbm, 2081, rfl⟩
abbrev main_v1888 : Ref sig .tc := ⟨.hbm, 2082, rfl⟩
abbrev main_v1889 : Ref sig .tc := ⟨.hbm, 2083, rfl⟩
abbrev main_v1890 : Ref sig .tc := ⟨.hbm, 2084, rfl⟩
abbrev main_v1891 : Ref sig .tc := ⟨.hbm, 2085, rfl⟩
abbrev main_v1892 : Ref sig .tc := ⟨.hbm, 2086, rfl⟩
abbrev main_v1893 : Ref sig .tc := ⟨.hbm, 2087, rfl⟩
abbrev main_v1894 : Ref sig .tc := ⟨.hbm, 2088, rfl⟩
abbrev main_v1895 : Ref sig .tc := ⟨.hbm, 2089, rfl⟩
abbrev main_v1896 : Ref sig .tc := ⟨.hbm, 2090, rfl⟩
abbrev main_v1897 : Ref sig .tc := ⟨.hbm, 2091, rfl⟩
abbrev main_v1898 : Ref sig .tc := ⟨.hbm, 2092, rfl⟩
abbrev main_v1899 : Ref sig .tc := ⟨.hbm, 2093, rfl⟩
abbrev main_v1900 : Ref sig .tc := ⟨.hbm, 2094, rfl⟩
abbrev main_cst_188 : Ref sig .tc := ⟨.hbm, 2095, rfl⟩
abbrev main_v1901 : Ref sig .tc := ⟨.hbm, 2096, rfl⟩
abbrev main_c_189 : Ref sig .tc := ⟨.hbm, 2097, rfl⟩
abbrev main_v1902 : Ref sig .tc := ⟨.hbm, 2098, rfl⟩
abbrev main_v1903 : Ref sig .tc := ⟨.hbm, 2099, rfl⟩
abbrev main_v1904 : Ref sig .tc := ⟨.hbm, 2100, rfl⟩
abbrev main_v1905 : Ref sig .tc := ⟨.hbm, 2101, rfl⟩
abbrev main_v1906 : Ref sig .tc := ⟨.hbm, 2102, rfl⟩
abbrev main_v1907 : Ref sig .tc := ⟨.hbm, 2103, rfl⟩
abbrev main_v1908 : Ref sig .tc := ⟨.hbm, 2104, rfl⟩
abbrev main_v1909 : Ref sig .tc := ⟨.hbm, 2105, rfl⟩
abbrev main_v1910 : Ref sig .tc := ⟨.hbm, 2106, rfl⟩
abbrev main_v1911 : Ref sig .tc := ⟨.hbm, 2107, rfl⟩
abbrev main_v1912 : Ref sig .tc := ⟨.hbm, 2108, rfl⟩
abbrev main_v1913 : Ref sig .tc := ⟨.hbm, 2109, rfl⟩
abbrev main_v1914 : Ref sig .tc := ⟨.hbm, 2110, rfl⟩
abbrev main_v1915 : Ref sig .tc := ⟨.hbm, 2111, rfl⟩
abbrev main_v1916 : Ref sig .tc := ⟨.hbm, 2112, rfl⟩
abbrev main_v1917 : Ref sig .tc := ⟨.hbm, 2113, rfl⟩
abbrev main_v1918 : Ref sig .tc := ⟨.hbm, 2114, rfl⟩
abbrev main_v1919 : Ref sig .tc := ⟨.hbm, 2115, rfl⟩
abbrev main_v1920 : Ref sig .tc := ⟨.hbm, 2116, rfl⟩
abbrev main_cst_190 : Ref sig .tc := ⟨.hbm, 2117, rfl⟩
abbrev main_v1921 : Ref sig .tc := ⟨.hbm, 2118, rfl⟩
abbrev main_c_191 : Ref sig .tc := ⟨.hbm, 2119, rfl⟩
abbrev main_v1922 : Ref sig .tc := ⟨.hbm, 2120, rfl⟩
abbrev main_v1923 : Ref sig .tc := ⟨.hbm, 2121, rfl⟩
abbrev main_v1924 : Ref sig .tc := ⟨.hbm, 2122, rfl⟩
abbrev main_v1925 : Ref sig .tc := ⟨.hbm, 2123, rfl⟩
abbrev main_v1926 : Ref sig .tc := ⟨.hbm, 2124, rfl⟩
abbrev main_v1927 : Ref sig .tc := ⟨.hbm, 2125, rfl⟩
abbrev main_v1928 : Ref sig .tc := ⟨.hbm, 2126, rfl⟩
abbrev main_v1929 : Ref sig .tc := ⟨.hbm, 2127, rfl⟩
abbrev main_v1930 : Ref sig .tc := ⟨.hbm, 2128, rfl⟩
abbrev main_v1931 : Ref sig .tc := ⟨.hbm, 2129, rfl⟩
abbrev main_v1932 : Ref sig .tc := ⟨.hbm, 2130, rfl⟩
abbrev main_v1933 : Ref sig .tc := ⟨.hbm, 2131, rfl⟩
abbrev main_v1934 : Ref sig .tc := ⟨.hbm, 2132, rfl⟩
abbrev main_v1935 : Ref sig .tc := ⟨.hbm, 2133, rfl⟩
abbrev main_v1936 : Ref sig .tc := ⟨.hbm, 2134, rfl⟩
abbrev main_v1937 : Ref sig .tc := ⟨.hbm, 2135, rfl⟩
abbrev main_v1938 : Ref sig .tc := ⟨.hbm, 2136, rfl⟩
abbrev main_v1939 : Ref sig .tc := ⟨.hbm, 2137, rfl⟩
abbrev main_v1940 : Ref sig .tc := ⟨.hbm, 2138, rfl⟩
abbrev main_cst_192 : Ref sig .tc := ⟨.hbm, 2139, rfl⟩
abbrev main_v1941 : Ref sig .tc := ⟨.hbm, 2140, rfl⟩
abbrev main_c_193 : Ref sig .tc := ⟨.hbm, 2141, rfl⟩
abbrev main_v1942 : Ref sig .tc := ⟨.hbm, 2142, rfl⟩
abbrev main_v1943 : Ref sig .tc := ⟨.hbm, 2143, rfl⟩
abbrev main_v1944 : Ref sig .tc := ⟨.hbm, 2144, rfl⟩
abbrev main_v1945 : Ref sig .tc := ⟨.hbm, 2145, rfl⟩
abbrev main_v1946 : Ref sig .tc := ⟨.hbm, 2146, rfl⟩
abbrev main_v1947 : Ref sig .tc := ⟨.hbm, 2147, rfl⟩
abbrev main_v1948 : Ref sig .tc := ⟨.hbm, 2148, rfl⟩
abbrev main_v1949 : Ref sig .tc := ⟨.hbm, 2149, rfl⟩
abbrev main_v1950 : Ref sig .tc := ⟨.hbm, 2150, rfl⟩
abbrev main_v1951 : Ref sig .tc := ⟨.hbm, 2151, rfl⟩
abbrev main_v1952 : Ref sig .tc := ⟨.hbm, 2152, rfl⟩
abbrev main_v1953 : Ref sig .tc := ⟨.hbm, 2153, rfl⟩
abbrev main_v1954 : Ref sig .tc := ⟨.hbm, 2154, rfl⟩
abbrev main_v1955 : Ref sig .tc := ⟨.hbm, 2155, rfl⟩
abbrev main_v1956 : Ref sig .tc := ⟨.hbm, 2156, rfl⟩
abbrev main_v1957 : Ref sig .tc := ⟨.hbm, 2157, rfl⟩
abbrev main_v1958 : Ref sig .tc := ⟨.hbm, 2158, rfl⟩
abbrev main_v1959 : Ref sig .tc := ⟨.hbm, 2159, rfl⟩
abbrev main_v1960 : Ref sig .tc := ⟨.hbm, 2160, rfl⟩
abbrev main_cst_194 : Ref sig .tc := ⟨.hbm, 2161, rfl⟩
abbrev main_v1961 : Ref sig .tc := ⟨.hbm, 2162, rfl⟩
abbrev main_c_195 : Ref sig .tc := ⟨.hbm, 2163, rfl⟩
abbrev main_v1962 : Ref sig .tc := ⟨.hbm, 2164, rfl⟩
abbrev main_v1963 : Ref sig .tc := ⟨.hbm, 2165, rfl⟩
abbrev main_v1964 : Ref sig .tc := ⟨.hbm, 2166, rfl⟩
abbrev main_v1965 : Ref sig .tc := ⟨.hbm, 2167, rfl⟩
abbrev main_v1966 : Ref sig .tc := ⟨.hbm, 2168, rfl⟩
abbrev main_v1967 : Ref sig .tc := ⟨.hbm, 2169, rfl⟩
abbrev main_v1968 : Ref sig .tc := ⟨.hbm, 2170, rfl⟩
abbrev main_v1969 : Ref sig .tc := ⟨.hbm, 2171, rfl⟩
abbrev main_v1970 : Ref sig .tc := ⟨.hbm, 2172, rfl⟩
abbrev main_v1971 : Ref sig .tc := ⟨.hbm, 2173, rfl⟩
abbrev main_v1972 : Ref sig .tc := ⟨.hbm, 2174, rfl⟩
abbrev main_v1973 : Ref sig .tc := ⟨.hbm, 2175, rfl⟩
abbrev main_v1974 : Ref sig .tc := ⟨.hbm, 2176, rfl⟩
abbrev main_v1975 : Ref sig .tc := ⟨.hbm, 2177, rfl⟩
abbrev main_v1976 : Ref sig .tc := ⟨.hbm, 2178, rfl⟩
abbrev main_v1977 : Ref sig .tc := ⟨.hbm, 2179, rfl⟩
abbrev main_v1978 : Ref sig .tc := ⟨.hbm, 2180, rfl⟩
abbrev main_v1979 : Ref sig .tc := ⟨.hbm, 2181, rfl⟩
abbrev main_v1980 : Ref sig .tc := ⟨.hbm, 2182, rfl⟩
abbrev main_cst_196 : Ref sig .tc := ⟨.hbm, 2183, rfl⟩
abbrev main_v1981 : Ref sig .tc := ⟨.hbm, 2184, rfl⟩
abbrev main_c_197 : Ref sig .tc := ⟨.hbm, 2185, rfl⟩
abbrev main_v1982 : Ref sig .tc := ⟨.hbm, 2186, rfl⟩
abbrev main_v1983 : Ref sig .tc := ⟨.hbm, 2187, rfl⟩
abbrev main_v1984 : Ref sig .tc := ⟨.hbm, 2188, rfl⟩
abbrev main_v1985 : Ref sig .tc := ⟨.hbm, 2189, rfl⟩
abbrev main_v1986 : Ref sig .tc := ⟨.hbm, 2190, rfl⟩
abbrev main_v1987 : Ref sig .tc := ⟨.hbm, 2191, rfl⟩
abbrev main_v1988 : Ref sig .tc := ⟨.hbm, 2192, rfl⟩
abbrev main_v1989 : Ref sig .tc := ⟨.hbm, 2193, rfl⟩
abbrev main_v1990 : Ref sig .tc := ⟨.hbm, 2194, rfl⟩
abbrev main_v1991 : Ref sig .tc := ⟨.hbm, 2195, rfl⟩
abbrev main_v1992 : Ref sig .tc := ⟨.hbm, 2196, rfl⟩
abbrev main_v1993 : Ref sig .tc := ⟨.hbm, 2197, rfl⟩
abbrev main_v1994 : Ref sig .tc := ⟨.hbm, 2198, rfl⟩
abbrev main_v1995 : Ref sig .tc := ⟨.hbm, 2199, rfl⟩
abbrev main_v1996 : Ref sig .tc := ⟨.hbm, 2200, rfl⟩
abbrev main_v1997 : Ref sig .tc := ⟨.hbm, 2201, rfl⟩
abbrev main_v1998 : Ref sig .tc := ⟨.hbm, 2202, rfl⟩
abbrev main_v1999 : Ref sig .tc := ⟨.hbm, 2203, rfl⟩
abbrev main_v2000 : Ref sig .tc := ⟨.hbm, 2204, rfl⟩
abbrev main_cst_198 : Ref sig .tc := ⟨.hbm, 2205, rfl⟩
abbrev main_v2001 : Ref sig .tc := ⟨.hbm, 2206, rfl⟩
abbrev main_c_199 : Ref sig .tc := ⟨.hbm, 2207, rfl⟩
abbrev main_v2002 : Ref sig .tc := ⟨.hbm, 2208, rfl⟩
abbrev main_v2003 : Ref sig .tc := ⟨.hbm, 2209, rfl⟩
abbrev main_v2004 : Ref sig .tc := ⟨.hbm, 2210, rfl⟩
abbrev main_v2005 : Ref sig .tc := ⟨.hbm, 2211, rfl⟩
abbrev main_v2006 : Ref sig .tc := ⟨.hbm, 2212, rfl⟩
abbrev main_v2007 : Ref sig .tc := ⟨.hbm, 2213, rfl⟩
abbrev main_v2008 : Ref sig .tc := ⟨.hbm, 2214, rfl⟩
abbrev main_v2009 : Ref sig .tc := ⟨.hbm, 2215, rfl⟩
abbrev main_v2010 : Ref sig .tc := ⟨.hbm, 2216, rfl⟩
abbrev main_v2011 : Ref sig .tc := ⟨.hbm, 2217, rfl⟩
abbrev main_v2012 : Ref sig .tc := ⟨.hbm, 2218, rfl⟩
abbrev main_v2013 : Ref sig .tc := ⟨.hbm, 2219, rfl⟩
abbrev main_v2014 : Ref sig .tc := ⟨.hbm, 2220, rfl⟩
abbrev main_v2015 : Ref sig .tc := ⟨.hbm, 2221, rfl⟩
abbrev main_v2016 : Ref sig .tc := ⟨.hbm, 2222, rfl⟩
abbrev main_v2017 : Ref sig .tc := ⟨.hbm, 2223, rfl⟩
abbrev main_v2018 : Ref sig .tc := ⟨.hbm, 2224, rfl⟩
abbrev main_v2019 : Ref sig .tc := ⟨.hbm, 2225, rfl⟩
abbrev main_v2020 : Ref sig .tc := ⟨.hbm, 2226, rfl⟩
abbrev main_cst_200 : Ref sig .tc := ⟨.hbm, 2227, rfl⟩
abbrev main_v2021 : Ref sig .tc := ⟨.hbm, 2228, rfl⟩
abbrev main_c_201 : Ref sig .tc := ⟨.hbm, 2229, rfl⟩
abbrev main_v2022 : Ref sig .tc := ⟨.hbm, 2230, rfl⟩
abbrev main_v2023 : Ref sig .tc := ⟨.hbm, 2231, rfl⟩
abbrev main_v2024 : Ref sig .tc := ⟨.hbm, 2232, rfl⟩
abbrev main_v2025 : Ref sig .tc := ⟨.hbm, 2233, rfl⟩
abbrev main_v2026 : Ref sig .tc := ⟨.hbm, 2234, rfl⟩
abbrev main_v2027 : Ref sig .tc := ⟨.hbm, 2235, rfl⟩
abbrev main_v2028 : Ref sig .tc := ⟨.hbm, 2236, rfl⟩
abbrev main_v2029 : Ref sig .tc := ⟨.hbm, 2237, rfl⟩
abbrev main_v2030 : Ref sig .tc := ⟨.hbm, 2238, rfl⟩
abbrev main_v2031 : Ref sig .tc := ⟨.hbm, 2239, rfl⟩
abbrev main_v2032 : Ref sig .tc := ⟨.hbm, 2240, rfl⟩
abbrev main_v2033 : Ref sig .tc := ⟨.hbm, 2241, rfl⟩
abbrev main_v2034 : Ref sig .tc := ⟨.hbm, 2242, rfl⟩
abbrev main_v2035 : Ref sig .tc := ⟨.hbm, 2243, rfl⟩
abbrev main_v2036 : Ref sig .tc := ⟨.hbm, 2244, rfl⟩
abbrev main_v2037 : Ref sig .tc := ⟨.hbm, 2245, rfl⟩
abbrev main_v2038 : Ref sig .tc := ⟨.hbm, 2246, rfl⟩
abbrev main_v2039 : Ref sig .tc := ⟨.hbm, 2247, rfl⟩
abbrev main_v2040 : Ref sig .tc := ⟨.hbm, 2248, rfl⟩
abbrev main_cst_202 : Ref sig .tc := ⟨.hbm, 2249, rfl⟩
abbrev main_v2041 : Ref sig .tc := ⟨.hbm, 2250, rfl⟩
abbrev main_c_203 : Ref sig .tc := ⟨.hbm, 2251, rfl⟩
abbrev main_v2042 : Ref sig .tc := ⟨.hbm, 2252, rfl⟩
abbrev main_v2043 : Ref sig .tc := ⟨.hbm, 2253, rfl⟩
abbrev main_v2044 : Ref sig .tc := ⟨.hbm, 2254, rfl⟩
abbrev main_v2045 : Ref sig .tc := ⟨.hbm, 2255, rfl⟩
abbrev main_v2046 : Ref sig .tc := ⟨.hbm, 2256, rfl⟩
abbrev main_v2047 : Ref sig .tc := ⟨.hbm, 2257, rfl⟩
abbrev main_v2048 : Ref sig .tc := ⟨.hbm, 2258, rfl⟩
abbrev main_v2049 : Ref sig .tc := ⟨.hbm, 2259, rfl⟩
abbrev main_v2050 : Ref sig .tc := ⟨.hbm, 2260, rfl⟩
abbrev main_v2051 : Ref sig .tc := ⟨.hbm, 2261, rfl⟩
abbrev main_v2052 : Ref sig .tc := ⟨.hbm, 2262, rfl⟩
abbrev main_v2053 : Ref sig .tc := ⟨.hbm, 2263, rfl⟩
abbrev main_v2054 : Ref sig .tc := ⟨.hbm, 2264, rfl⟩
abbrev main_v2055 : Ref sig .tc := ⟨.hbm, 2265, rfl⟩
abbrev main_v2056 : Ref sig .tc := ⟨.hbm, 2266, rfl⟩
abbrev main_v2057 : Ref sig .tc := ⟨.hbm, 2267, rfl⟩
abbrev main_v2058 : Ref sig .tc := ⟨.hbm, 2268, rfl⟩
abbrev main_v2059 : Ref sig .tc := ⟨.hbm, 2269, rfl⟩
abbrev main_v2060 : Ref sig .tc := ⟨.hbm, 2270, rfl⟩
abbrev main_cst_204 : Ref sig .tc := ⟨.hbm, 2271, rfl⟩
abbrev main_v2061 : Ref sig .tc := ⟨.hbm, 2272, rfl⟩
abbrev main_c_205 : Ref sig .tc := ⟨.hbm, 2273, rfl⟩
abbrev main_v2062 : Ref sig .tc := ⟨.hbm, 2274, rfl⟩
abbrev main_v2063 : Ref sig .tc := ⟨.hbm, 2275, rfl⟩
abbrev main_v2064 : Ref sig .tc := ⟨.hbm, 2276, rfl⟩
abbrev main_v2065 : Ref sig .tc := ⟨.hbm, 2277, rfl⟩
abbrev main_v2066 : Ref sig .tc := ⟨.hbm, 2278, rfl⟩
abbrev main_v2067 : Ref sig .tc := ⟨.hbm, 2279, rfl⟩
abbrev main_v2068 : Ref sig .tc := ⟨.hbm, 2280, rfl⟩
abbrev main_v2069 : Ref sig .tc := ⟨.hbm, 2281, rfl⟩
abbrev main_v2070 : Ref sig .tc := ⟨.hbm, 2282, rfl⟩
abbrev main_v2071 : Ref sig .tc := ⟨.hbm, 2283, rfl⟩
abbrev main_v2072 : Ref sig .tc := ⟨.hbm, 2284, rfl⟩
abbrev main_v2073 : Ref sig .tc := ⟨.hbm, 2285, rfl⟩
abbrev main_v2074 : Ref sig .tc := ⟨.hbm, 2286, rfl⟩
abbrev main_v2075 : Ref sig .tc := ⟨.hbm, 2287, rfl⟩
abbrev main_v2076 : Ref sig .tc := ⟨.hbm, 2288, rfl⟩
abbrev main_v2077 : Ref sig .tc := ⟨.hbm, 2289, rfl⟩
abbrev main_v2078 : Ref sig .tc := ⟨.hbm, 2290, rfl⟩
abbrev main_v2079 : Ref sig .tc := ⟨.hbm, 2291, rfl⟩
abbrev main_v2080 : Ref sig .tc := ⟨.hbm, 2292, rfl⟩
abbrev main_cst_206 : Ref sig .tc := ⟨.hbm, 2293, rfl⟩
abbrev main_v2081 : Ref sig .tc := ⟨.hbm, 2294, rfl⟩
abbrev main_c_207 : Ref sig .tc := ⟨.hbm, 2295, rfl⟩
abbrev main_v2082 : Ref sig .tc := ⟨.hbm, 2296, rfl⟩
abbrev main_v2083 : Ref sig .tc := ⟨.hbm, 2297, rfl⟩
abbrev main_v2084 : Ref sig .tc := ⟨.hbm, 2298, rfl⟩
abbrev main_v2085 : Ref sig .tc := ⟨.hbm, 2299, rfl⟩
abbrev main_v2086 : Ref sig .tc := ⟨.hbm, 2300, rfl⟩
abbrev main_v2087 : Ref sig .tc := ⟨.hbm, 2301, rfl⟩
abbrev main_v2088 : Ref sig .tc := ⟨.hbm, 2302, rfl⟩
abbrev main_v2089 : Ref sig .tc := ⟨.hbm, 2303, rfl⟩
abbrev main_v2090 : Ref sig .tc := ⟨.hbm, 2304, rfl⟩
abbrev main_v2091 : Ref sig .tc := ⟨.hbm, 2305, rfl⟩
abbrev main_v2092 : Ref sig .tc := ⟨.hbm, 2306, rfl⟩
abbrev main_v2093 : Ref sig .tc := ⟨.hbm, 2307, rfl⟩
abbrev main_v2094 : Ref sig .tc := ⟨.hbm, 2308, rfl⟩
abbrev main_v2095 : Ref sig .tc := ⟨.hbm, 2309, rfl⟩
abbrev main_v2096 : Ref sig .tc := ⟨.hbm, 2310, rfl⟩
abbrev main_v2097 : Ref sig .tc := ⟨.hbm, 2311, rfl⟩
abbrev main_v2098 : Ref sig .tc := ⟨.hbm, 2312, rfl⟩
abbrev main_v2099 : Ref sig .tc := ⟨.hbm, 2313, rfl⟩
abbrev main_v2100 : Ref sig .tc := ⟨.hbm, 2314, rfl⟩
abbrev main_cst_208 : Ref sig .tc := ⟨.hbm, 2315, rfl⟩
abbrev main_v2101 : Ref sig .tc := ⟨.hbm, 2316, rfl⟩
abbrev main_c_209 : Ref sig .tc := ⟨.hbm, 2317, rfl⟩
abbrev main_v2102 : Ref sig .tc := ⟨.hbm, 2318, rfl⟩
abbrev main_v2103 : Ref sig .tc := ⟨.hbm, 2319, rfl⟩
abbrev main_v2104 : Ref sig .tc := ⟨.hbm, 2320, rfl⟩
abbrev main_v2105 : Ref sig .tc := ⟨.hbm, 2321, rfl⟩
abbrev main_v2106 : Ref sig .tc := ⟨.hbm, 2322, rfl⟩
abbrev main_v2107 : Ref sig .tc := ⟨.hbm, 2323, rfl⟩
abbrev main_v2108 : Ref sig .tc := ⟨.hbm, 2324, rfl⟩
abbrev main_v2109 : Ref sig .tc := ⟨.hbm, 2325, rfl⟩
abbrev main_v2110 : Ref sig .tc := ⟨.hbm, 2326, rfl⟩
abbrev main_v2111 : Ref sig .tc := ⟨.hbm, 2327, rfl⟩
abbrev main_v2112 : Ref sig .tc := ⟨.hbm, 2328, rfl⟩
abbrev main_v2113 : Ref sig .tc := ⟨.hbm, 2329, rfl⟩
abbrev main_v2114 : Ref sig .tc := ⟨.hbm, 2330, rfl⟩
abbrev main_v2115 : Ref sig .tc := ⟨.hbm, 2331, rfl⟩
abbrev main_v2116 : Ref sig .tc := ⟨.hbm, 2332, rfl⟩
abbrev main_v2117 : Ref sig .tc := ⟨.hbm, 2333, rfl⟩
abbrev main_v2118 : Ref sig .tc := ⟨.hbm, 2334, rfl⟩
abbrev main_v2119 : Ref sig .tc := ⟨.hbm, 2335, rfl⟩
abbrev main_v2120 : Ref sig .tc := ⟨.hbm, 2336, rfl⟩
abbrev main_cst_210 : Ref sig .tc := ⟨.hbm, 2337, rfl⟩
abbrev main_v2121 : Ref sig .tc := ⟨.hbm, 2338, rfl⟩
abbrev main_c_211 : Ref sig .tc := ⟨.hbm, 2339, rfl⟩
abbrev main_v2122 : Ref sig .tc := ⟨.hbm, 2340, rfl⟩
abbrev main_v2123 : Ref sig .tc := ⟨.hbm, 2341, rfl⟩
abbrev main_v2124 : Ref sig .tc := ⟨.hbm, 2342, rfl⟩
abbrev main_v2125 : Ref sig .tc := ⟨.hbm, 2343, rfl⟩
abbrev main_v2126 : Ref sig .tc := ⟨.hbm, 2344, rfl⟩
abbrev main_v2127 : Ref sig .tc := ⟨.hbm, 2345, rfl⟩
abbrev main_v2128 : Ref sig .tc := ⟨.hbm, 2346, rfl⟩
abbrev main_v2129 : Ref sig .tc := ⟨.hbm, 2347, rfl⟩
abbrev main_v2130 : Ref sig .tc := ⟨.hbm, 2348, rfl⟩
abbrev main_v2131 : Ref sig .tc := ⟨.hbm, 2349, rfl⟩
abbrev main_v2132 : Ref sig .tc := ⟨.hbm, 2350, rfl⟩
abbrev main_v2133 : Ref sig .tc := ⟨.hbm, 2351, rfl⟩
abbrev main_v2134 : Ref sig .tc := ⟨.hbm, 2352, rfl⟩
abbrev main_v2135 : Ref sig .tc := ⟨.hbm, 2353, rfl⟩
abbrev main_v2136 : Ref sig .tc := ⟨.hbm, 2354, rfl⟩
abbrev main_v2137 : Ref sig .tc := ⟨.hbm, 2355, rfl⟩
abbrev main_v2138 : Ref sig .tc := ⟨.hbm, 2356, rfl⟩
abbrev main_v2139 : Ref sig .tc := ⟨.hbm, 2357, rfl⟩
abbrev main_v2140 : Ref sig .tc := ⟨.hbm, 2358, rfl⟩
abbrev main_cst_212 : Ref sig .tc := ⟨.hbm, 2359, rfl⟩
abbrev main_v2141 : Ref sig .tc := ⟨.hbm, 2360, rfl⟩
abbrev main_c_213 : Ref sig .tc := ⟨.hbm, 2361, rfl⟩
abbrev main_v2142 : Ref sig .tc := ⟨.hbm, 2362, rfl⟩
abbrev main_v2143 : Ref sig .tc := ⟨.hbm, 2363, rfl⟩
abbrev main_v2144 : Ref sig .tc := ⟨.hbm, 2364, rfl⟩
abbrev main_v2145 : Ref sig .tc := ⟨.hbm, 2365, rfl⟩
abbrev main_v2146 : Ref sig .tc := ⟨.hbm, 2366, rfl⟩
abbrev main_v2147 : Ref sig .tc := ⟨.hbm, 2367, rfl⟩
abbrev main_v2148 : Ref sig .tc := ⟨.hbm, 2368, rfl⟩
abbrev main_v2149 : Ref sig .tc := ⟨.hbm, 2369, rfl⟩
abbrev main_v2150 : Ref sig .tc := ⟨.hbm, 2370, rfl⟩
abbrev main_v2151 : Ref sig .tc := ⟨.hbm, 2371, rfl⟩
abbrev main_v2152 : Ref sig .tc := ⟨.hbm, 2372, rfl⟩
abbrev main_v2153 : Ref sig .tc := ⟨.hbm, 2373, rfl⟩
abbrev main_v2154 : Ref sig .tc := ⟨.hbm, 2374, rfl⟩
abbrev main_v2155 : Ref sig .tc := ⟨.hbm, 2375, rfl⟩
abbrev main_v2156 : Ref sig .tc := ⟨.hbm, 2376, rfl⟩
abbrev main_v2157 : Ref sig .tc := ⟨.hbm, 2377, rfl⟩
abbrev main_v2158 : Ref sig .tc := ⟨.hbm, 2378, rfl⟩
abbrev main_v2159 : Ref sig .tc := ⟨.hbm, 2379, rfl⟩
abbrev main_v2160 : Ref sig .tc := ⟨.hbm, 2380, rfl⟩
abbrev main_cst_214 : Ref sig .tc := ⟨.hbm, 2381, rfl⟩
abbrev main_v2161 : Ref sig .tc := ⟨.hbm, 2382, rfl⟩
abbrev main_c_215 : Ref sig .tc := ⟨.hbm, 2383, rfl⟩
abbrev main_v2162 : Ref sig .tc := ⟨.hbm, 2384, rfl⟩
abbrev main_v2163 : Ref sig .tc := ⟨.hbm, 2385, rfl⟩
abbrev main_v2164 : Ref sig .tc := ⟨.hbm, 2386, rfl⟩
abbrev main_v2165 : Ref sig .tc := ⟨.hbm, 2387, rfl⟩
abbrev main_v2166 : Ref sig .tc := ⟨.hbm, 2388, rfl⟩
abbrev main_v2167 : Ref sig .tc := ⟨.hbm, 2389, rfl⟩
abbrev main_v2168 : Ref sig .tc := ⟨.hbm, 2390, rfl⟩
abbrev main_v2169 : Ref sig .tc := ⟨.hbm, 2391, rfl⟩
abbrev main_v2170 : Ref sig .tc := ⟨.hbm, 2392, rfl⟩
abbrev main_v2171 : Ref sig .tc := ⟨.hbm, 2393, rfl⟩
abbrev main_v2172 : Ref sig .tc := ⟨.hbm, 2394, rfl⟩
abbrev main_v2173 : Ref sig .tc := ⟨.hbm, 2395, rfl⟩
abbrev main_v2174 : Ref sig .tc := ⟨.hbm, 2396, rfl⟩
abbrev main_v2175 : Ref sig .tc := ⟨.hbm, 2397, rfl⟩
abbrev main_v2176 : Ref sig .tc := ⟨.hbm, 2398, rfl⟩
abbrev main_v2177 : Ref sig .tc := ⟨.hbm, 2399, rfl⟩
abbrev main_v2178 : Ref sig .tc := ⟨.hbm, 2400, rfl⟩
abbrev main_v2179 : Ref sig .tc := ⟨.hbm, 2401, rfl⟩
abbrev main_v2180 : Ref sig .tc := ⟨.hbm, 2402, rfl⟩
abbrev main_cst_216 : Ref sig .tc := ⟨.hbm, 2403, rfl⟩
abbrev main_v2181 : Ref sig .tc := ⟨.hbm, 2404, rfl⟩
abbrev main_c_217 : Ref sig .tc := ⟨.hbm, 2405, rfl⟩
abbrev main_v2182 : Ref sig .tc := ⟨.hbm, 2406, rfl⟩
abbrev main_v2183 : Ref sig .tc := ⟨.hbm, 2407, rfl⟩
abbrev main_v2184 : Ref sig .tc := ⟨.hbm, 2408, rfl⟩
abbrev main_v2185 : Ref sig .tc := ⟨.hbm, 2409, rfl⟩
abbrev main_v2186 : Ref sig .tc := ⟨.hbm, 2410, rfl⟩
abbrev main_v2187 : Ref sig .tc := ⟨.hbm, 2411, rfl⟩
abbrev main_v2188 : Ref sig .tc := ⟨.hbm, 2412, rfl⟩
abbrev main_v2189 : Ref sig .tc := ⟨.hbm, 2413, rfl⟩
abbrev main_v2190 : Ref sig .tc := ⟨.hbm, 2414, rfl⟩
abbrev main_v2191 : Ref sig .tc := ⟨.hbm, 2415, rfl⟩
abbrev main_v2192 : Ref sig .tc := ⟨.hbm, 2416, rfl⟩
abbrev main_v2193 : Ref sig .tc := ⟨.hbm, 2417, rfl⟩
abbrev main_v2194 : Ref sig .tc := ⟨.hbm, 2418, rfl⟩
abbrev main_v2195 : Ref sig .tc := ⟨.hbm, 2419, rfl⟩
abbrev main_v2196 : Ref sig .tc := ⟨.hbm, 2420, rfl⟩
abbrev main_v2197 : Ref sig .tc := ⟨.hbm, 2421, rfl⟩
abbrev main_v2198 : Ref sig .tc := ⟨.hbm, 2422, rfl⟩
abbrev main_v2199 : Ref sig .tc := ⟨.hbm, 2423, rfl⟩
abbrev main_v2200 : Ref sig .tc := ⟨.hbm, 2424, rfl⟩
abbrev main_cst_218 : Ref sig .tc := ⟨.hbm, 2425, rfl⟩
abbrev main_v2201 : Ref sig .tc := ⟨.hbm, 2426, rfl⟩
abbrev main_c_219 : Ref sig .tc := ⟨.hbm, 2427, rfl⟩
abbrev main_v2202 : Ref sig .tc := ⟨.hbm, 2428, rfl⟩
abbrev main_v2203 : Ref sig .tc := ⟨.hbm, 2429, rfl⟩
abbrev main_v2204 : Ref sig .tc := ⟨.hbm, 2430, rfl⟩
abbrev main_v2205 : Ref sig .tc := ⟨.hbm, 2431, rfl⟩
abbrev main_v2206 : Ref sig .tc := ⟨.hbm, 2432, rfl⟩
abbrev main_v2207 : Ref sig .tc := ⟨.hbm, 2433, rfl⟩
abbrev main_v2208 : Ref sig .tc := ⟨.hbm, 2434, rfl⟩
abbrev main_v2209 : Ref sig .tc := ⟨.hbm, 2435, rfl⟩
abbrev main_v2210 : Ref sig .tc := ⟨.hbm, 2436, rfl⟩
abbrev main_v2211 : Ref sig .tc := ⟨.hbm, 2437, rfl⟩
abbrev main_v2212 : Ref sig .tc := ⟨.hbm, 2438, rfl⟩
abbrev main_v2213 : Ref sig .tc := ⟨.hbm, 2439, rfl⟩
abbrev main_v2214 : Ref sig .tc := ⟨.hbm, 2440, rfl⟩
abbrev main_v2215 : Ref sig .tc := ⟨.hbm, 2441, rfl⟩
abbrev main_v2216 : Ref sig .tc := ⟨.hbm, 2442, rfl⟩
abbrev main_v2217 : Ref sig .tc := ⟨.hbm, 2443, rfl⟩
abbrev main_v2218 : Ref sig .tc := ⟨.hbm, 2444, rfl⟩
abbrev main_v2219 : Ref sig .tc := ⟨.hbm, 2445, rfl⟩
abbrev main_v2220 : Ref sig .tc := ⟨.hbm, 2446, rfl⟩
abbrev main_cst_220 : Ref sig .tc := ⟨.hbm, 2447, rfl⟩
abbrev main_v2221 : Ref sig .tc := ⟨.hbm, 2448, rfl⟩
abbrev main_c_221 : Ref sig .tc := ⟨.hbm, 2449, rfl⟩
abbrev main_v2222 : Ref sig .tc := ⟨.hbm, 2450, rfl⟩
abbrev main_v2223 : Ref sig .tc := ⟨.hbm, 2451, rfl⟩
abbrev main_v2224 : Ref sig .tc := ⟨.hbm, 2452, rfl⟩
abbrev main_v2225 : Ref sig .tc := ⟨.hbm, 2453, rfl⟩
abbrev main_v2226 : Ref sig .tc := ⟨.hbm, 2454, rfl⟩
abbrev main_v2227 : Ref sig .tc := ⟨.hbm, 2455, rfl⟩
abbrev main_v2228 : Ref sig .tc := ⟨.hbm, 2456, rfl⟩
abbrev main_v2229 : Ref sig .tc := ⟨.hbm, 2457, rfl⟩
abbrev main_v2230 : Ref sig .tc := ⟨.hbm, 2458, rfl⟩
abbrev main_v2231 : Ref sig .tc := ⟨.hbm, 2459, rfl⟩
abbrev main_v2232 : Ref sig .tc := ⟨.hbm, 2460, rfl⟩
abbrev main_v2233 : Ref sig .tc := ⟨.hbm, 2461, rfl⟩
abbrev main_v2234 : Ref sig .tc := ⟨.hbm, 2462, rfl⟩
abbrev main_v2235 : Ref sig .tc := ⟨.hbm, 2463, rfl⟩
abbrev main_v2236 : Ref sig .tc := ⟨.hbm, 2464, rfl⟩
abbrev main_v2237 : Ref sig .tc := ⟨.hbm, 2465, rfl⟩
abbrev main_v2238 : Ref sig .tc := ⟨.hbm, 2466, rfl⟩
abbrev main_v2239 : Ref sig .tc := ⟨.hbm, 2467, rfl⟩
abbrev main_v2240 : Ref sig .tc := ⟨.hbm, 2468, rfl⟩
abbrev main_cst_222 : Ref sig .tc := ⟨.hbm, 2469, rfl⟩
abbrev main_v2241 : Ref sig .tc := ⟨.hbm, 2470, rfl⟩
abbrev main_c_223 : Ref sig .tc := ⟨.hbm, 2471, rfl⟩
abbrev main_v2242 : Ref sig .tc := ⟨.hbm, 2472, rfl⟩
abbrev main_v2243 : Ref sig .tc := ⟨.hbm, 2473, rfl⟩
abbrev main_v2244 : Ref sig .tc := ⟨.hbm, 2474, rfl⟩
abbrev main_v2245 : Ref sig .tc := ⟨.hbm, 2475, rfl⟩
abbrev main_v2246 : Ref sig .tc := ⟨.hbm, 2476, rfl⟩
abbrev main_v2247 : Ref sig .tc := ⟨.hbm, 2477, rfl⟩
abbrev main_v2248 : Ref sig .tc := ⟨.hbm, 2478, rfl⟩
abbrev main_v2249 : Ref sig .tc := ⟨.hbm, 2479, rfl⟩
abbrev main_v2250 : Ref sig .tc := ⟨.hbm, 2480, rfl⟩
abbrev main_v2251 : Ref sig .tc := ⟨.hbm, 2481, rfl⟩
abbrev main_v2252 : Ref sig .tc := ⟨.hbm, 2482, rfl⟩
abbrev main_v2253 : Ref sig .tc := ⟨.hbm, 2483, rfl⟩
abbrev main_v2254 : Ref sig .tc := ⟨.hbm, 2484, rfl⟩
abbrev main_v2255 : Ref sig .tc := ⟨.hbm, 2485, rfl⟩
abbrev main_v2256 : Ref sig .tc := ⟨.hbm, 2486, rfl⟩
abbrev main_v2257 : Ref sig .tc := ⟨.hbm, 2487, rfl⟩
abbrev main_v2258 : Ref sig .tc := ⟨.hbm, 2488, rfl⟩
abbrev main_v2259 : Ref sig .tc := ⟨.hbm, 2489, rfl⟩
abbrev main_v2260 : Ref sig .tc := ⟨.hbm, 2490, rfl⟩
abbrev main_cst_224 : Ref sig .tc := ⟨.hbm, 2491, rfl⟩
abbrev main_v2261 : Ref sig .tc := ⟨.hbm, 2492, rfl⟩
abbrev main_c_225 : Ref sig .tc := ⟨.hbm, 2493, rfl⟩
abbrev main_v2262 : Ref sig .tc := ⟨.hbm, 2494, rfl⟩
abbrev main_v2263 : Ref sig .tc := ⟨.hbm, 2495, rfl⟩
abbrev main_v2264 : Ref sig .tc := ⟨.hbm, 2496, rfl⟩
abbrev main_v2265 : Ref sig .tc := ⟨.hbm, 2497, rfl⟩
abbrev main_v2266 : Ref sig .tc := ⟨.hbm, 2498, rfl⟩
abbrev main_v2267 : Ref sig .tc := ⟨.hbm, 2499, rfl⟩
abbrev main_v2268 : Ref sig .tc := ⟨.hbm, 2500, rfl⟩
abbrev main_v2269 : Ref sig .tc := ⟨.hbm, 2501, rfl⟩
abbrev main_v2270 : Ref sig .tc := ⟨.hbm, 2502, rfl⟩
abbrev main_v2271 : Ref sig .tc := ⟨.hbm, 2503, rfl⟩
abbrev main_v2272 : Ref sig .tc := ⟨.hbm, 2504, rfl⟩
abbrev main_v2273 : Ref sig .tc := ⟨.hbm, 2505, rfl⟩
abbrev main_v2274 : Ref sig .tc := ⟨.hbm, 2506, rfl⟩
abbrev main_v2275 : Ref sig .tc := ⟨.hbm, 2507, rfl⟩
abbrev main_v2276 : Ref sig .tc := ⟨.hbm, 2508, rfl⟩
abbrev main_v2277 : Ref sig .tc := ⟨.hbm, 2509, rfl⟩
abbrev main_v2278 : Ref sig .tc := ⟨.hbm, 2510, rfl⟩
abbrev main_v2279 : Ref sig .tc := ⟨.hbm, 2511, rfl⟩
abbrev main_v2280 : Ref sig .tc := ⟨.hbm, 2512, rfl⟩
abbrev main_cst_226 : Ref sig .tc := ⟨.hbm, 2513, rfl⟩
abbrev main_v2281 : Ref sig .tc := ⟨.hbm, 2514, rfl⟩
abbrev main_c_227 : Ref sig .tc := ⟨.hbm, 2515, rfl⟩
abbrev main_v2282 : Ref sig .tc := ⟨.hbm, 2516, rfl⟩
abbrev main_v2283 : Ref sig .tc := ⟨.hbm, 2517, rfl⟩
abbrev main_v2284 : Ref sig .tc := ⟨.hbm, 2518, rfl⟩
abbrev main_v2285 : Ref sig .tc := ⟨.hbm, 2519, rfl⟩
abbrev main_v2286 : Ref sig .tc := ⟨.hbm, 2520, rfl⟩
abbrev main_v2287 : Ref sig .tc := ⟨.hbm, 2521, rfl⟩
abbrev main_v2288 : Ref sig .tc := ⟨.hbm, 2522, rfl⟩
abbrev main_v2289 : Ref sig .tc := ⟨.hbm, 2523, rfl⟩
abbrev main_v2290 : Ref sig .tc := ⟨.hbm, 2524, rfl⟩
abbrev main_v2291 : Ref sig .tc := ⟨.hbm, 2525, rfl⟩
abbrev main_v2292 : Ref sig .tc := ⟨.hbm, 2526, rfl⟩
abbrev main_v2293 : Ref sig .tc := ⟨.hbm, 2527, rfl⟩
abbrev main_v2294 : Ref sig .tc := ⟨.hbm, 2528, rfl⟩
abbrev main_v2295 : Ref sig .tc := ⟨.hbm, 2529, rfl⟩
abbrev main_v2296 : Ref sig .tc := ⟨.hbm, 2530, rfl⟩
abbrev main_v2297 : Ref sig .tc := ⟨.hbm, 2531, rfl⟩
abbrev main_v2298 : Ref sig .tc := ⟨.hbm, 2532, rfl⟩
abbrev main_v2299 : Ref sig .tc := ⟨.hbm, 2533, rfl⟩
abbrev main_v2300 : Ref sig .tc := ⟨.hbm, 2534, rfl⟩
abbrev main_cst_228 : Ref sig .tc := ⟨.hbm, 2535, rfl⟩
abbrev main_v2301 : Ref sig .tc := ⟨.hbm, 2536, rfl⟩
abbrev main_c_229 : Ref sig .tc := ⟨.hbm, 2537, rfl⟩
abbrev main_v2302 : Ref sig .tc := ⟨.hbm, 2538, rfl⟩
abbrev main_v2303 : Ref sig .tc := ⟨.hbm, 2539, rfl⟩
abbrev main_v2304 : Ref sig .tc := ⟨.hbm, 2540, rfl⟩
abbrev main_v2305 : Ref sig .tc := ⟨.hbm, 2541, rfl⟩
abbrev main_v2306 : Ref sig .tc := ⟨.hbm, 2542, rfl⟩
abbrev main_v2307 : Ref sig .tc := ⟨.hbm, 2543, rfl⟩
abbrev main_v2308 : Ref sig .tc := ⟨.hbm, 2544, rfl⟩
abbrev main_v2309 : Ref sig .tc := ⟨.hbm, 2545, rfl⟩
abbrev main_v2310 : Ref sig .tc := ⟨.hbm, 2546, rfl⟩
abbrev main_v2311 : Ref sig .tc := ⟨.hbm, 2547, rfl⟩
abbrev main_v2312 : Ref sig .tc := ⟨.hbm, 2548, rfl⟩
abbrev main_v2313 : Ref sig .tc := ⟨.hbm, 2549, rfl⟩
abbrev main_v2314 : Ref sig .tc := ⟨.hbm, 2550, rfl⟩
abbrev main_v2315 : Ref sig .tc := ⟨.hbm, 2551, rfl⟩
abbrev main_v2316 : Ref sig .tc := ⟨.hbm, 2552, rfl⟩
abbrev main_v2317 : Ref sig .tc := ⟨.hbm, 2553, rfl⟩
abbrev main_v2318 : Ref sig .tc := ⟨.hbm, 2554, rfl⟩
abbrev main_v2319 : Ref sig .tc := ⟨.hbm, 2555, rfl⟩
abbrev main_v2320 : Ref sig .tc := ⟨.hbm, 2556, rfl⟩
abbrev main_cst_230 : Ref sig .tc := ⟨.hbm, 2557, rfl⟩
abbrev main_v2321 : Ref sig .tc := ⟨.hbm, 2558, rfl⟩
abbrev main_c_231 : Ref sig .tc := ⟨.hbm, 2559, rfl⟩
abbrev main_v2322 : Ref sig .tc := ⟨.hbm, 2560, rfl⟩
abbrev main_v2323 : Ref sig .tc := ⟨.hbm, 2561, rfl⟩
abbrev main_v2324 : Ref sig .tc := ⟨.hbm, 2562, rfl⟩
abbrev main_v2325 : Ref sig .tc := ⟨.hbm, 2563, rfl⟩
abbrev main_v2326 : Ref sig .tc := ⟨.hbm, 2564, rfl⟩
abbrev main_v2327 : Ref sig .tc := ⟨.hbm, 2565, rfl⟩
abbrev main_v2328 : Ref sig .tc := ⟨.hbm, 2566, rfl⟩
abbrev main_v2329 : Ref sig .tc := ⟨.hbm, 2567, rfl⟩
abbrev main_v2330 : Ref sig .tc := ⟨.hbm, 2568, rfl⟩
abbrev main_v2331 : Ref sig .tc := ⟨.hbm, 2569, rfl⟩
abbrev main_v2332 : Ref sig .tc := ⟨.hbm, 2570, rfl⟩
abbrev main_v2333 : Ref sig .tc := ⟨.hbm, 2571, rfl⟩
abbrev main_v2334 : Ref sig .tc := ⟨.hbm, 2572, rfl⟩
abbrev main_v2335 : Ref sig .tc := ⟨.hbm, 2573, rfl⟩
abbrev main_v2336 : Ref sig .tc := ⟨.hbm, 2574, rfl⟩
abbrev main_v2337 : Ref sig .tc := ⟨.hbm, 2575, rfl⟩
abbrev main_v2338 : Ref sig .tc := ⟨.hbm, 2576, rfl⟩
abbrev main_v2339 : Ref sig .tc := ⟨.hbm, 2577, rfl⟩
abbrev main_v2340 : Ref sig .tc := ⟨.hbm, 2578, rfl⟩
abbrev main_cst_232 : Ref sig .tc := ⟨.hbm, 2579, rfl⟩
abbrev main_v2341 : Ref sig .tc := ⟨.hbm, 2580, rfl⟩
abbrev main_c_233 : Ref sig .tc := ⟨.hbm, 2581, rfl⟩
abbrev main_v2342 : Ref sig .tc := ⟨.hbm, 2582, rfl⟩
abbrev main_v2343 : Ref sig .tc := ⟨.hbm, 2583, rfl⟩
abbrev main_v2344 : Ref sig .tc := ⟨.hbm, 2584, rfl⟩
abbrev main_v2345 : Ref sig .tc := ⟨.hbm, 2585, rfl⟩
abbrev main_v2346 : Ref sig .tc := ⟨.hbm, 2586, rfl⟩
abbrev main_v2347 : Ref sig .tc := ⟨.hbm, 2587, rfl⟩
abbrev main_v2348 : Ref sig .tc := ⟨.hbm, 2588, rfl⟩
abbrev main_v2349 : Ref sig .tc := ⟨.hbm, 2589, rfl⟩
abbrev main_v2350 : Ref sig .tc := ⟨.hbm, 2590, rfl⟩
abbrev main_v2351 : Ref sig .tc := ⟨.hbm, 2591, rfl⟩
abbrev main_v2352 : Ref sig .tc := ⟨.hbm, 2592, rfl⟩
abbrev main_v2353 : Ref sig .tc := ⟨.hbm, 2593, rfl⟩
abbrev main_v2354 : Ref sig .tc := ⟨.hbm, 2594, rfl⟩
abbrev main_v2355 : Ref sig .tc := ⟨.hbm, 2595, rfl⟩
abbrev main_v2356 : Ref sig .tc := ⟨.hbm, 2596, rfl⟩
abbrev main_v2357 : Ref sig .tc := ⟨.hbm, 2597, rfl⟩
abbrev main_v2358 : Ref sig .tc := ⟨.hbm, 2598, rfl⟩
abbrev main_v2359 : Ref sig .tc := ⟨.hbm, 2599, rfl⟩
abbrev main_v2360 : Ref sig .tc := ⟨.hbm, 2600, rfl⟩
abbrev main_cst_234 : Ref sig .tc := ⟨.hbm, 2601, rfl⟩
abbrev main_v2361 : Ref sig .tc := ⟨.hbm, 2602, rfl⟩
abbrev main_c_235 : Ref sig .tc := ⟨.hbm, 2603, rfl⟩
abbrev main_v2362 : Ref sig .tc := ⟨.hbm, 2604, rfl⟩
abbrev main_v2363 : Ref sig .tc := ⟨.hbm, 2605, rfl⟩
abbrev main_v2364 : Ref sig .tc := ⟨.hbm, 2606, rfl⟩
abbrev main_v2365 : Ref sig .tc := ⟨.hbm, 2607, rfl⟩
abbrev main_v2366 : Ref sig .tc := ⟨.hbm, 2608, rfl⟩
abbrev main_v2367 : Ref sig .tc := ⟨.hbm, 2609, rfl⟩
abbrev main_v2368 : Ref sig .tc := ⟨.hbm, 2610, rfl⟩
abbrev main_v2369 : Ref sig .tc := ⟨.hbm, 2611, rfl⟩
abbrev main_v2370 : Ref sig .tc := ⟨.hbm, 2612, rfl⟩
abbrev main_v2371 : Ref sig .tc := ⟨.hbm, 2613, rfl⟩
abbrev main_v2372 : Ref sig .tc := ⟨.hbm, 2614, rfl⟩
abbrev main_v2373 : Ref sig .tc := ⟨.hbm, 2615, rfl⟩
abbrev main_v2374 : Ref sig .tc := ⟨.hbm, 2616, rfl⟩
abbrev main_v2375 : Ref sig .tc := ⟨.hbm, 2617, rfl⟩
abbrev main_v2376 : Ref sig .tc := ⟨.hbm, 2618, rfl⟩
abbrev main_v2377 : Ref sig .tc := ⟨.hbm, 2619, rfl⟩
abbrev main_v2378 : Ref sig .tc := ⟨.hbm, 2620, rfl⟩
abbrev main_v2379 : Ref sig .tc := ⟨.hbm, 2621, rfl⟩
abbrev main_v2380 : Ref sig .tc := ⟨.hbm, 2622, rfl⟩
abbrev main_cst_236 : Ref sig .tc := ⟨.hbm, 2623, rfl⟩
abbrev main_v2381 : Ref sig .tc := ⟨.hbm, 2624, rfl⟩
abbrev main_c_237 : Ref sig .tc := ⟨.hbm, 2625, rfl⟩
abbrev main_v2382 : Ref sig .tc := ⟨.hbm, 2626, rfl⟩
abbrev main_v2383 : Ref sig .tc := ⟨.hbm, 2627, rfl⟩
abbrev main_v2384 : Ref sig .tc := ⟨.hbm, 2628, rfl⟩
abbrev main_v2385 : Ref sig .tc := ⟨.hbm, 2629, rfl⟩
abbrev main_v2386 : Ref sig .tc := ⟨.hbm, 2630, rfl⟩
abbrev main_v2387 : Ref sig .tc := ⟨.hbm, 2631, rfl⟩
abbrev main_v2388 : Ref sig .tc := ⟨.hbm, 2632, rfl⟩
abbrev main_v2389 : Ref sig .tc := ⟨.hbm, 2633, rfl⟩
abbrev main_v2390 : Ref sig .tc := ⟨.hbm, 2634, rfl⟩
abbrev main_v2391 : Ref sig .tc := ⟨.hbm, 2635, rfl⟩
abbrev main_v2392 : Ref sig .tc := ⟨.hbm, 2636, rfl⟩
abbrev main_v2393 : Ref sig .tc := ⟨.hbm, 2637, rfl⟩
abbrev main_v2394 : Ref sig .tc := ⟨.hbm, 2638, rfl⟩
abbrev main_v2395 : Ref sig .tc := ⟨.hbm, 2639, rfl⟩
abbrev main_v2396 : Ref sig .tc := ⟨.hbm, 2640, rfl⟩
abbrev main_v2397 : Ref sig .tc := ⟨.hbm, 2641, rfl⟩
abbrev main_v2398 : Ref sig .tc := ⟨.hbm, 2642, rfl⟩
abbrev main_v2399 : Ref sig .tc := ⟨.hbm, 2643, rfl⟩
abbrev main_v2400 : Ref sig .tc := ⟨.hbm, 2644, rfl⟩
abbrev main_cst_238 : Ref sig .tc := ⟨.hbm, 2645, rfl⟩
abbrev main_v2401 : Ref sig .tc := ⟨.hbm, 2646, rfl⟩
abbrev main_c_239 : Ref sig .tc := ⟨.hbm, 2647, rfl⟩
abbrev main_v2402 : Ref sig .tc := ⟨.hbm, 2648, rfl⟩
abbrev main_v2403 : Ref sig .tc := ⟨.hbm, 2649, rfl⟩
abbrev main_v2404 : Ref sig .tc := ⟨.hbm, 2650, rfl⟩
abbrev main_v2405 : Ref sig .tc := ⟨.hbm, 2651, rfl⟩
abbrev main_v2406 : Ref sig .tc := ⟨.hbm, 2652, rfl⟩
abbrev main_v2407 : Ref sig .tc := ⟨.hbm, 2653, rfl⟩
abbrev main_v2408 : Ref sig .tc := ⟨.hbm, 2654, rfl⟩
abbrev main_v2409 : Ref sig .tc := ⟨.hbm, 2655, rfl⟩
abbrev main_v2410 : Ref sig .tc := ⟨.hbm, 2656, rfl⟩
abbrev main_v2411 : Ref sig .tc := ⟨.hbm, 2657, rfl⟩
abbrev main_v2412 : Ref sig .tc := ⟨.hbm, 2658, rfl⟩
abbrev main_v2413 : Ref sig .tc := ⟨.hbm, 2659, rfl⟩
abbrev main_v2414 : Ref sig .tc := ⟨.hbm, 2660, rfl⟩
abbrev main_v2415 : Ref sig .tc := ⟨.hbm, 2661, rfl⟩
abbrev main_v2416 : Ref sig .tc := ⟨.hbm, 2662, rfl⟩
abbrev main_v2417 : Ref sig .tc := ⟨.hbm, 2663, rfl⟩
abbrev main_v2418 : Ref sig .tc := ⟨.hbm, 2664, rfl⟩
abbrev main_v2419 : Ref sig .tc := ⟨.hbm, 2665, rfl⟩
abbrev main_v2420 : Ref sig .tc := ⟨.hbm, 2666, rfl⟩
abbrev main_cst_240 : Ref sig .tc := ⟨.hbm, 2667, rfl⟩
abbrev main_v2421 : Ref sig .tc := ⟨.hbm, 2668, rfl⟩
abbrev main_c_241 : Ref sig .tc := ⟨.hbm, 2669, rfl⟩
abbrev main_v2422 : Ref sig .tc := ⟨.hbm, 2670, rfl⟩
abbrev main_v2423 : Ref sig .tc := ⟨.hbm, 2671, rfl⟩
abbrev main_v2424 : Ref sig .tc := ⟨.hbm, 2672, rfl⟩
abbrev main_v2425 : Ref sig .tc := ⟨.hbm, 2673, rfl⟩
abbrev main_v2426 : Ref sig .tc := ⟨.hbm, 2674, rfl⟩
abbrev main_v2427 : Ref sig .tc := ⟨.hbm, 2675, rfl⟩
abbrev main_v2428 : Ref sig .tc := ⟨.hbm, 2676, rfl⟩
abbrev main_v2429 : Ref sig .tc := ⟨.hbm, 2677, rfl⟩
abbrev main_v2430 : Ref sig .tc := ⟨.hbm, 2678, rfl⟩
abbrev main_v2431 : Ref sig .tc := ⟨.hbm, 2679, rfl⟩
abbrev main_v2432 : Ref sig .tc := ⟨.hbm, 2680, rfl⟩
abbrev main_v2433 : Ref sig .tc := ⟨.hbm, 2681, rfl⟩
abbrev main_v2434 : Ref sig .tc := ⟨.hbm, 2682, rfl⟩
abbrev main_v2435 : Ref sig .tc := ⟨.hbm, 2683, rfl⟩
abbrev main_v2436 : Ref sig .tc := ⟨.hbm, 2684, rfl⟩
abbrev main_v2437 : Ref sig .tc := ⟨.hbm, 2685, rfl⟩
abbrev main_v2438 : Ref sig .tc := ⟨.hbm, 2686, rfl⟩
abbrev main_v2439 : Ref sig .tc := ⟨.hbm, 2687, rfl⟩
abbrev main_v2440 : Ref sig .tc := ⟨.hbm, 2688, rfl⟩
abbrev main_cst_242 : Ref sig .tc := ⟨.hbm, 2689, rfl⟩
abbrev main_v2441 : Ref sig .tc := ⟨.hbm, 2690, rfl⟩
abbrev main_c_243 : Ref sig .tc := ⟨.hbm, 2691, rfl⟩
abbrev main_v2442 : Ref sig .tc := ⟨.hbm, 2692, rfl⟩
abbrev main_v2443 : Ref sig .tc := ⟨.hbm, 2693, rfl⟩
abbrev main_v2444 : Ref sig .tc := ⟨.hbm, 2694, rfl⟩
abbrev main_v2445 : Ref sig .tc := ⟨.hbm, 2695, rfl⟩
abbrev main_v2446 : Ref sig .tc := ⟨.hbm, 2696, rfl⟩
abbrev main_v2447 : Ref sig .tc := ⟨.hbm, 2697, rfl⟩
abbrev main_v2448 : Ref sig .tc := ⟨.hbm, 2698, rfl⟩
abbrev main_v2449 : Ref sig .tc := ⟨.hbm, 2699, rfl⟩
abbrev main_v2450 : Ref sig .tc := ⟨.hbm, 2700, rfl⟩
abbrev main_v2451 : Ref sig .tc := ⟨.hbm, 2701, rfl⟩
abbrev main_v2452 : Ref sig .tc := ⟨.hbm, 2702, rfl⟩
abbrev main_v2453 : Ref sig .tc := ⟨.hbm, 2703, rfl⟩
abbrev main_v2454 : Ref sig .tc := ⟨.hbm, 2704, rfl⟩
abbrev main_v2455 : Ref sig .tc := ⟨.hbm, 2705, rfl⟩
abbrev main_v2456 : Ref sig .tc := ⟨.hbm, 2706, rfl⟩
abbrev main_v2457 : Ref sig .tc := ⟨.hbm, 2707, rfl⟩
abbrev main_v2458 : Ref sig .tc := ⟨.hbm, 2708, rfl⟩
abbrev main_v2459 : Ref sig .tc := ⟨.hbm, 2709, rfl⟩
abbrev main_v2460 : Ref sig .tc := ⟨.hbm, 2710, rfl⟩
abbrev main_cst_244 : Ref sig .tc := ⟨.hbm, 2711, rfl⟩
abbrev main_v2461 : Ref sig .tc := ⟨.hbm, 2712, rfl⟩
abbrev main_c_245 : Ref sig .tc := ⟨.hbm, 2713, rfl⟩
abbrev main_v2462 : Ref sig .tc := ⟨.hbm, 2714, rfl⟩
abbrev main_v2463 : Ref sig .tc := ⟨.hbm, 2715, rfl⟩
abbrev main_v2464 : Ref sig .tc := ⟨.hbm, 2716, rfl⟩
abbrev main_v2465 : Ref sig .tc := ⟨.hbm, 2717, rfl⟩
abbrev main_v2466 : Ref sig .tc := ⟨.hbm, 2718, rfl⟩
abbrev main_v2467 : Ref sig .tc := ⟨.hbm, 2719, rfl⟩
abbrev main_v2468 : Ref sig .tc := ⟨.hbm, 2720, rfl⟩
abbrev main_v2469 : Ref sig .tc := ⟨.hbm, 2721, rfl⟩
abbrev main_v2470 : Ref sig .tc := ⟨.hbm, 2722, rfl⟩
abbrev main_v2471 : Ref sig .tc := ⟨.hbm, 2723, rfl⟩
abbrev main_v2472 : Ref sig .tc := ⟨.hbm, 2724, rfl⟩
abbrev main_v2473 : Ref sig .tc := ⟨.hbm, 2725, rfl⟩
abbrev main_v2474 : Ref sig .tc := ⟨.hbm, 2726, rfl⟩
abbrev main_v2475 : Ref sig .tc := ⟨.hbm, 2727, rfl⟩
abbrev main_v2476 : Ref sig .tc := ⟨.hbm, 2728, rfl⟩
abbrev main_v2477 : Ref sig .tc := ⟨.hbm, 2729, rfl⟩
abbrev main_v2478 : Ref sig .tc := ⟨.hbm, 2730, rfl⟩
abbrev main_v2479 : Ref sig .tc := ⟨.hbm, 2731, rfl⟩
abbrev main_v2480 : Ref sig .tc := ⟨.hbm, 2732, rfl⟩
abbrev main_cst_246 : Ref sig .tc := ⟨.hbm, 2733, rfl⟩
abbrev main_v2481 : Ref sig .tc := ⟨.hbm, 2734, rfl⟩
abbrev main_c_247 : Ref sig .tc := ⟨.hbm, 2735, rfl⟩
abbrev main_v2482 : Ref sig .tc := ⟨.hbm, 2736, rfl⟩
abbrev main_v2483 : Ref sig .tc := ⟨.hbm, 2737, rfl⟩
abbrev main_v2484 : Ref sig .tc := ⟨.hbm, 2738, rfl⟩
abbrev main_v2485 : Ref sig .tc := ⟨.hbm, 2739, rfl⟩
abbrev main_v2486 : Ref sig .tc := ⟨.hbm, 2740, rfl⟩
abbrev main_v2487 : Ref sig .tc := ⟨.hbm, 2741, rfl⟩
abbrev main_v2488 : Ref sig .tc := ⟨.hbm, 2742, rfl⟩
abbrev main_v2489 : Ref sig .tc := ⟨.hbm, 2743, rfl⟩
abbrev main_v2490 : Ref sig .tc := ⟨.hbm, 2744, rfl⟩
abbrev main_v2491 : Ref sig .tc := ⟨.hbm, 2745, rfl⟩
abbrev main_v2492 : Ref sig .tc := ⟨.hbm, 2746, rfl⟩
abbrev main_v2493 : Ref sig .tc := ⟨.hbm, 2747, rfl⟩
abbrev main_v2494 : Ref sig .tc := ⟨.hbm, 2748, rfl⟩
abbrev main_v2495 : Ref sig .tc := ⟨.hbm, 2749, rfl⟩
abbrev main_v2496 : Ref sig .tc := ⟨.hbm, 2750, rfl⟩
abbrev main_v2497 : Ref sig .tc := ⟨.hbm, 2751, rfl⟩
abbrev main_v2498 : Ref sig .tc := ⟨.hbm, 2752, rfl⟩
abbrev main_v2499 : Ref sig .tc := ⟨.hbm, 2753, rfl⟩
abbrev main_v2500 : Ref sig .tc := ⟨.hbm, 2754, rfl⟩
abbrev main_cst_248 : Ref sig .tc := ⟨.hbm, 2755, rfl⟩
abbrev main_v2501 : Ref sig .tc := ⟨.hbm, 2756, rfl⟩
abbrev main_c_249 : Ref sig .tc := ⟨.hbm, 2757, rfl⟩
abbrev main_v2502 : Ref sig .tc := ⟨.hbm, 2758, rfl⟩
abbrev main_v2503 : Ref sig .tc := ⟨.hbm, 2759, rfl⟩
abbrev main_v2504 : Ref sig .tc := ⟨.hbm, 2760, rfl⟩
abbrev main_v2505 : Ref sig .tc := ⟨.hbm, 2761, rfl⟩
abbrev main_v2506 : Ref sig .tc := ⟨.hbm, 2762, rfl⟩
abbrev main_v2507 : Ref sig .tc := ⟨.hbm, 2763, rfl⟩
abbrev main_v2508 : Ref sig .tc := ⟨.hbm, 2764, rfl⟩
abbrev main_v2509 : Ref sig .tc := ⟨.hbm, 2765, rfl⟩
abbrev main_v2510 : Ref sig .tc := ⟨.hbm, 2766, rfl⟩
abbrev main_v2511 : Ref sig .tc := ⟨.hbm, 2767, rfl⟩
abbrev main_v2512 : Ref sig .tc := ⟨.hbm, 2768, rfl⟩
abbrev main_v2513 : Ref sig .tc := ⟨.hbm, 2769, rfl⟩
abbrev main_v2514 : Ref sig .tc := ⟨.hbm, 2770, rfl⟩
abbrev main_v2515 : Ref sig .tc := ⟨.hbm, 2771, rfl⟩
abbrev main_v2516 : Ref sig .tc := ⟨.hbm, 2772, rfl⟩
abbrev main_v2517 : Ref sig .tc := ⟨.hbm, 2773, rfl⟩
abbrev main_v2518 : Ref sig .tc := ⟨.hbm, 2774, rfl⟩
abbrev main_v2519 : Ref sig .tc := ⟨.hbm, 2775, rfl⟩
abbrev main_v2520 : Ref sig .tc := ⟨.hbm, 2776, rfl⟩
abbrev main_cst_250 : Ref sig .tc := ⟨.hbm, 2777, rfl⟩
abbrev main_v2521 : Ref sig .tc := ⟨.hbm, 2778, rfl⟩
abbrev main_c_251 : Ref sig .tc := ⟨.hbm, 2779, rfl⟩
abbrev main_v2522 : Ref sig .tc := ⟨.hbm, 2780, rfl⟩
abbrev main_v2523 : Ref sig .tc := ⟨.hbm, 2781, rfl⟩
abbrev main_v2524 : Ref sig .tc := ⟨.hbm, 2782, rfl⟩
abbrev main_v2525 : Ref sig .tc := ⟨.hbm, 2783, rfl⟩
abbrev main_v2526 : Ref sig .tc := ⟨.hbm, 2784, rfl⟩
abbrev main_v2527 : Ref sig .tc := ⟨.hbm, 2785, rfl⟩
abbrev main_v2528 : Ref sig .tc := ⟨.hbm, 2786, rfl⟩
abbrev main_v2529 : Ref sig .tc := ⟨.hbm, 2787, rfl⟩
abbrev main_v2530 : Ref sig .tc := ⟨.hbm, 2788, rfl⟩
abbrev main_v2531 : Ref sig .tc := ⟨.hbm, 2789, rfl⟩
abbrev main_v2532 : Ref sig .tc := ⟨.hbm, 2790, rfl⟩
abbrev main_v2533 : Ref sig .tc := ⟨.hbm, 2791, rfl⟩
abbrev main_v2534 : Ref sig .tc := ⟨.hbm, 2792, rfl⟩
abbrev main_v2535 : Ref sig .tc := ⟨.hbm, 2793, rfl⟩
abbrev main_v2536 : Ref sig .tc := ⟨.hbm, 2794, rfl⟩
abbrev main_v2537 : Ref sig .tc := ⟨.hbm, 2795, rfl⟩
abbrev main_v2538 : Ref sig .tc := ⟨.hbm, 2796, rfl⟩
abbrev main_v2539 : Ref sig .tc := ⟨.hbm, 2797, rfl⟩
abbrev main_v2540 : Ref sig .tc := ⟨.hbm, 2798, rfl⟩
abbrev main_cst_252 : Ref sig .tc := ⟨.hbm, 2799, rfl⟩
abbrev main_v2541 : Ref sig .tc := ⟨.hbm, 2800, rfl⟩
abbrev main_c_253 : Ref sig .tc := ⟨.hbm, 2801, rfl⟩
abbrev main_v2542 : Ref sig .tc := ⟨.hbm, 2802, rfl⟩
abbrev main_v2543 : Ref sig .tc := ⟨.hbm, 2803, rfl⟩
abbrev main_v2544 : Ref sig .tc := ⟨.hbm, 2804, rfl⟩
abbrev main_v2545 : Ref sig .tc := ⟨.hbm, 2805, rfl⟩
abbrev main_v2546 : Ref sig .tc := ⟨.hbm, 2806, rfl⟩
abbrev main_v2547 : Ref sig .tc := ⟨.hbm, 2807, rfl⟩
abbrev main_v2548 : Ref sig .tc := ⟨.hbm, 2808, rfl⟩
abbrev main_v2549 : Ref sig .tc := ⟨.hbm, 2809, rfl⟩
abbrev main_v2550 : Ref sig .tc := ⟨.hbm, 2810, rfl⟩
abbrev main_v2551 : Ref sig .tc := ⟨.hbm, 2811, rfl⟩
abbrev main_v2552 : Ref sig .tc := ⟨.hbm, 2812, rfl⟩
abbrev main_v2553 : Ref sig .tc := ⟨.hbm, 2813, rfl⟩
abbrev main_v2554 : Ref sig .tc := ⟨.hbm, 2814, rfl⟩
abbrev main_v2555 : Ref sig .tc := ⟨.hbm, 2815, rfl⟩
abbrev main_v2556 : Ref sig .tc := ⟨.hbm, 2816, rfl⟩
abbrev main_v2557 : Ref sig .tc := ⟨.hbm, 2817, rfl⟩
abbrev main_v2558 : Ref sig .tc := ⟨.hbm, 2818, rfl⟩
abbrev main_v2559 : Ref sig .tc := ⟨.hbm, 2819, rfl⟩
abbrev main_v2560 : Ref sig .tc := ⟨.hbm, 2820, rfl⟩
abbrev main_cst_254 : Ref sig .tc := ⟨.hbm, 2821, rfl⟩
abbrev main_v2561 : Ref sig .tc := ⟨.hbm, 2822, rfl⟩
abbrev main_c_255 : Ref sig .tc := ⟨.hbm, 2823, rfl⟩
abbrev main_v2562 : Ref sig .tc := ⟨.hbm, 2824, rfl⟩
abbrev main_v2563 : Ref sig .tc := ⟨.hbm, 2825, rfl⟩
abbrev main_v2564 : Ref sig .tc := ⟨.hbm, 2826, rfl⟩
abbrev main_v2565 : Ref sig .tc := ⟨.hbm, 2827, rfl⟩
abbrev main_v2566 : Ref sig .tc := ⟨.hbm, 2828, rfl⟩
abbrev main_v2567 : Ref sig .tc := ⟨.hbm, 2829, rfl⟩
abbrev main_v2568 : Ref sig .tc := ⟨.hbm, 2830, rfl⟩
abbrev main_v2569 : Ref sig .tc := ⟨.hbm, 2831, rfl⟩
abbrev main_v2570 : Ref sig .tc := ⟨.hbm, 2832, rfl⟩
abbrev main_v2571 : Ref sig .tc := ⟨.hbm, 2833, rfl⟩
abbrev main_v2572 : Ref sig .tc := ⟨.hbm, 2834, rfl⟩
abbrev main_v2573 : Ref sig .tc := ⟨.hbm, 2835, rfl⟩
abbrev main_v2574 : Ref sig .tc := ⟨.hbm, 2836, rfl⟩
abbrev main_v2575 : Ref sig .tc := ⟨.hbm, 2837, rfl⟩
abbrev main_v2576 : Ref sig .tc := ⟨.hbm, 2838, rfl⟩
abbrev main_v2577 : Ref sig .tc := ⟨.hbm, 2839, rfl⟩
abbrev main_v2578 : Ref sig .tc := ⟨.hbm, 2840, rfl⟩
abbrev main_v2579 : Ref sig .tc := ⟨.hbm, 2841, rfl⟩
abbrev main_v2580 : Ref sig .tc := ⟨.hbm, 2842, rfl⟩
abbrev main_cst_256 : Ref sig .tc := ⟨.hbm, 2843, rfl⟩
abbrev main_v2581 : Ref sig .tc := ⟨.hbm, 2844, rfl⟩
abbrev main_c_257 : Ref sig .tc := ⟨.hbm, 2845, rfl⟩
abbrev main_v2582 : Ref sig .tc := ⟨.hbm, 2846, rfl⟩
abbrev main_v2583 : Ref sig .tc := ⟨.hbm, 2847, rfl⟩
abbrev main_v2584 : Ref sig .tc := ⟨.hbm, 2848, rfl⟩
abbrev main_v2585 : Ref sig .tc := ⟨.hbm, 2849, rfl⟩
abbrev main_v2586 : Ref sig .tc := ⟨.hbm, 2850, rfl⟩
abbrev main_v2587 : Ref sig .tc := ⟨.hbm, 2851, rfl⟩
abbrev main_v2588 : Ref sig .tc := ⟨.hbm, 2852, rfl⟩
abbrev main_v2589 : Ref sig .tc := ⟨.hbm, 2853, rfl⟩
abbrev main_v2590 : Ref sig .tc := ⟨.hbm, 2854, rfl⟩
abbrev main_v2591 : Ref sig .tc := ⟨.hbm, 2855, rfl⟩
abbrev main_v2592 : Ref sig .tc := ⟨.hbm, 2856, rfl⟩
abbrev main_v2593 : Ref sig .tc := ⟨.hbm, 2857, rfl⟩
abbrev main_v2594 : Ref sig .tc := ⟨.hbm, 2858, rfl⟩
abbrev main_v2595 : Ref sig .tc := ⟨.hbm, 2859, rfl⟩
abbrev main_v2596 : Ref sig .tc := ⟨.hbm, 2860, rfl⟩
abbrev main_v2597 : Ref sig .tc := ⟨.hbm, 2861, rfl⟩
abbrev main_v2598 : Ref sig .tc := ⟨.hbm, 2862, rfl⟩
abbrev main_v2599 : Ref sig .tc := ⟨.hbm, 2863, rfl⟩
abbrev main_v2600 : Ref sig .tc := ⟨.hbm, 2864, rfl⟩
abbrev main_cst_258 : Ref sig .tc := ⟨.hbm, 2865, rfl⟩
abbrev main_v2601 : Ref sig .tc := ⟨.hbm, 2866, rfl⟩
abbrev main_c_259 : Ref sig .tc := ⟨.hbm, 2867, rfl⟩
abbrev main_v2602 : Ref sig .tc := ⟨.hbm, 2868, rfl⟩
abbrev main_v2603 : Ref sig .tc := ⟨.hbm, 2869, rfl⟩
abbrev main_v2604 : Ref sig .tc := ⟨.hbm, 2870, rfl⟩
abbrev main_v2605 : Ref sig .tc := ⟨.hbm, 2871, rfl⟩
abbrev main_v2606 : Ref sig .tc := ⟨.hbm, 2872, rfl⟩
abbrev main_v2607 : Ref sig .tc := ⟨.hbm, 2873, rfl⟩
abbrev main_v2608 : Ref sig .tc := ⟨.hbm, 2874, rfl⟩
abbrev main_v2609 : Ref sig .tc := ⟨.hbm, 2875, rfl⟩
abbrev main_v2610 : Ref sig .tc := ⟨.hbm, 2876, rfl⟩
abbrev main_v2611 : Ref sig .tc := ⟨.hbm, 2877, rfl⟩
abbrev main_v2612 : Ref sig .tc := ⟨.hbm, 2878, rfl⟩
abbrev main_v2613 : Ref sig .tc := ⟨.hbm, 2879, rfl⟩
abbrev main_v2614 : Ref sig .tc := ⟨.hbm, 2880, rfl⟩
abbrev main_v2615 : Ref sig .tc := ⟨.hbm, 2881, rfl⟩
abbrev main_v2616 : Ref sig .tc := ⟨.hbm, 2882, rfl⟩
abbrev main_v2617 : Ref sig .tc := ⟨.hbm, 2883, rfl⟩
abbrev main_v2618 : Ref sig .tc := ⟨.hbm, 2884, rfl⟩
abbrev main_v2619 : Ref sig .tc := ⟨.hbm, 2885, rfl⟩
abbrev main_v2620 : Ref sig .tc := ⟨.hbm, 2886, rfl⟩
abbrev main_cst_260 : Ref sig .tc := ⟨.hbm, 2887, rfl⟩
abbrev main_v2621 : Ref sig .tc := ⟨.hbm, 2888, rfl⟩
abbrev main_c_261 : Ref sig .tc := ⟨.hbm, 2889, rfl⟩
abbrev main_v2622 : Ref sig .tc := ⟨.hbm, 2890, rfl⟩
abbrev main_v2623 : Ref sig .tc := ⟨.hbm, 2891, rfl⟩
abbrev main_v2624 : Ref sig .tc := ⟨.hbm, 2892, rfl⟩
abbrev main_v2625 : Ref sig .tc := ⟨.hbm, 2893, rfl⟩
abbrev main_v2626 : Ref sig .tc := ⟨.hbm, 2894, rfl⟩
abbrev main_v2627 : Ref sig .tc := ⟨.hbm, 2895, rfl⟩
abbrev main_v2628 : Ref sig .tc := ⟨.hbm, 2896, rfl⟩
abbrev main_v2629 : Ref sig .tc := ⟨.hbm, 2897, rfl⟩
abbrev main_v2630 : Ref sig .tc := ⟨.hbm, 2898, rfl⟩
abbrev main_v2631 : Ref sig .tc := ⟨.hbm, 2899, rfl⟩
abbrev main_v2632 : Ref sig .tc := ⟨.hbm, 2900, rfl⟩
abbrev main_v2633 : Ref sig .tc := ⟨.hbm, 2901, rfl⟩
abbrev main_v2634 : Ref sig .tc := ⟨.hbm, 2902, rfl⟩
abbrev main_v2635 : Ref sig .tc := ⟨.hbm, 2903, rfl⟩
abbrev main_v2636 : Ref sig .tc := ⟨.hbm, 2904, rfl⟩
abbrev main_v2637 : Ref sig .tc := ⟨.hbm, 2905, rfl⟩
abbrev main_v2638 : Ref sig .tc := ⟨.hbm, 2906, rfl⟩
abbrev main_v2639 : Ref sig .tc := ⟨.hbm, 2907, rfl⟩
abbrev main_v2640 : Ref sig .tc := ⟨.hbm, 2908, rfl⟩
abbrev main_cst_262 : Ref sig .tc := ⟨.hbm, 2909, rfl⟩
abbrev main_v2641 : Ref sig .tc := ⟨.hbm, 2910, rfl⟩
abbrev main_c_263 : Ref sig .tc := ⟨.hbm, 2911, rfl⟩
abbrev main_v2642 : Ref sig .tc := ⟨.hbm, 2912, rfl⟩
abbrev main_v2643 : Ref sig .tc := ⟨.hbm, 2913, rfl⟩
abbrev main_v2644 : Ref sig .tc := ⟨.hbm, 2914, rfl⟩
abbrev main_v2645 : Ref sig .tc := ⟨.hbm, 2915, rfl⟩
abbrev main_v2646 : Ref sig .tc := ⟨.hbm, 2916, rfl⟩
abbrev main_v2647 : Ref sig .tc := ⟨.hbm, 2917, rfl⟩
abbrev main_v2648 : Ref sig .tc := ⟨.hbm, 2918, rfl⟩
abbrev main_v2649 : Ref sig .tc := ⟨.hbm, 2919, rfl⟩
abbrev main_v2650 : Ref sig .tc := ⟨.hbm, 2920, rfl⟩
abbrev main_v2651 : Ref sig .tc := ⟨.hbm, 2921, rfl⟩
abbrev main_v2652 : Ref sig .tc := ⟨.hbm, 2922, rfl⟩
abbrev main_v2653 : Ref sig .tc := ⟨.hbm, 2923, rfl⟩
abbrev main_v2654 : Ref sig .tc := ⟨.hbm, 2924, rfl⟩
abbrev main_v2655 : Ref sig .tc := ⟨.hbm, 2925, rfl⟩
abbrev main_v2656 : Ref sig .tc := ⟨.hbm, 2926, rfl⟩
abbrev main_v2657 : Ref sig .tc := ⟨.hbm, 2927, rfl⟩
abbrev main_v2658 : Ref sig .tc := ⟨.hbm, 2928, rfl⟩
abbrev main_v2659 : Ref sig .tc := ⟨.hbm, 2929, rfl⟩
abbrev main_v2660 : Ref sig .tc := ⟨.hbm, 2930, rfl⟩
abbrev main_cst_264 : Ref sig .tc := ⟨.hbm, 2931, rfl⟩
abbrev main_v2661 : Ref sig .tc := ⟨.hbm, 2932, rfl⟩
abbrev main_c_265 : Ref sig .tc := ⟨.hbm, 2933, rfl⟩
abbrev main_v2662 : Ref sig .tc := ⟨.hbm, 2934, rfl⟩
abbrev main_v2663 : Ref sig .tc := ⟨.hbm, 2935, rfl⟩
abbrev main_v2664 : Ref sig .tc := ⟨.hbm, 2936, rfl⟩
abbrev main_v2665 : Ref sig .tc := ⟨.hbm, 2937, rfl⟩
abbrev main_v2666 : Ref sig .tc := ⟨.hbm, 2938, rfl⟩
abbrev main_v2667 : Ref sig .tc := ⟨.hbm, 2939, rfl⟩
abbrev main_v2668 : Ref sig .tc := ⟨.hbm, 2940, rfl⟩
abbrev main_v2669 : Ref sig .tc := ⟨.hbm, 2941, rfl⟩
abbrev main_v2670 : Ref sig .tc := ⟨.hbm, 2942, rfl⟩
abbrev main_v2671 : Ref sig .tc := ⟨.hbm, 2943, rfl⟩
abbrev main_v2672 : Ref sig .tc := ⟨.hbm, 2944, rfl⟩
abbrev main_v2673 : Ref sig .tc := ⟨.hbm, 2945, rfl⟩
abbrev main_v2674 : Ref sig .tc := ⟨.hbm, 2946, rfl⟩
abbrev main_v2675 : Ref sig .tc := ⟨.hbm, 2947, rfl⟩
abbrev main_v2676 : Ref sig .tc := ⟨.hbm, 2948, rfl⟩
abbrev main_v2677 : Ref sig .tc := ⟨.hbm, 2949, rfl⟩
abbrev main_v2678 : Ref sig .tc := ⟨.hbm, 2950, rfl⟩
abbrev main_v2679 : Ref sig .tc := ⟨.hbm, 2951, rfl⟩
abbrev main_v2680 : Ref sig .tc := ⟨.hbm, 2952, rfl⟩
abbrev main_cst_266 : Ref sig .tc := ⟨.hbm, 2953, rfl⟩
abbrev main_v2681 : Ref sig .tc := ⟨.hbm, 2954, rfl⟩
abbrev main_c_267 : Ref sig .tc := ⟨.hbm, 2955, rfl⟩
abbrev main_v2682 : Ref sig .tc := ⟨.hbm, 2956, rfl⟩
abbrev main_v2683 : Ref sig .tc := ⟨.hbm, 2957, rfl⟩
abbrev main_v2684 : Ref sig .tc := ⟨.hbm, 2958, rfl⟩
abbrev main_v2685 : Ref sig .tc := ⟨.hbm, 2959, rfl⟩
abbrev main_v2686 : Ref sig .tc := ⟨.hbm, 2960, rfl⟩
abbrev main_v2687 : Ref sig .tc := ⟨.hbm, 2961, rfl⟩
abbrev main_v2688 : Ref sig .tc := ⟨.hbm, 2962, rfl⟩
abbrev main_v2689 : Ref sig .tc := ⟨.hbm, 2963, rfl⟩
abbrev main_v2690 : Ref sig .tc := ⟨.hbm, 2964, rfl⟩
abbrev main_v2691 : Ref sig .tc := ⟨.hbm, 2965, rfl⟩
abbrev main_v2692 : Ref sig .tc := ⟨.hbm, 2966, rfl⟩
abbrev main_v2693 : Ref sig .tc := ⟨.hbm, 2967, rfl⟩
abbrev main_v2694 : Ref sig .tc := ⟨.hbm, 2968, rfl⟩
abbrev main_v2695 : Ref sig .tc := ⟨.hbm, 2969, rfl⟩
abbrev main_v2696 : Ref sig .tc := ⟨.hbm, 2970, rfl⟩
abbrev main_v2697 : Ref sig .tc := ⟨.hbm, 2971, rfl⟩
abbrev main_v2698 : Ref sig .tc := ⟨.hbm, 2972, rfl⟩
abbrev main_v2699 : Ref sig .tc := ⟨.hbm, 2973, rfl⟩
abbrev main_v2700 : Ref sig .tc := ⟨.hbm, 2974, rfl⟩
abbrev main_cst_268 : Ref sig .tc := ⟨.hbm, 2975, rfl⟩
abbrev main_v2701 : Ref sig .tc := ⟨.hbm, 2976, rfl⟩
abbrev main_c_269 : Ref sig .tc := ⟨.hbm, 2977, rfl⟩
abbrev main_v2702 : Ref sig .tc := ⟨.hbm, 2978, rfl⟩
abbrev main_v2703 : Ref sig .tc := ⟨.hbm, 2979, rfl⟩
abbrev main_v2704 : Ref sig .tc := ⟨.hbm, 2980, rfl⟩
abbrev main_v2705 : Ref sig .tc := ⟨.hbm, 2981, rfl⟩
abbrev main_v2706 : Ref sig .tc := ⟨.hbm, 2982, rfl⟩
abbrev main_v2707 : Ref sig .tc := ⟨.hbm, 2983, rfl⟩
abbrev main_v2708 : Ref sig .tc := ⟨.hbm, 2984, rfl⟩
abbrev main_v2709 : Ref sig .tc := ⟨.hbm, 2985, rfl⟩
abbrev main_v2710 : Ref sig .tc := ⟨.hbm, 2986, rfl⟩
abbrev main_v2711 : Ref sig .tc := ⟨.hbm, 2987, rfl⟩
abbrev main_v2712 : Ref sig .tc := ⟨.hbm, 2988, rfl⟩
abbrev main_v2713 : Ref sig .tc := ⟨.hbm, 2989, rfl⟩
abbrev main_v2714 : Ref sig .tc := ⟨.hbm, 2990, rfl⟩
abbrev main_v2715 : Ref sig .tc := ⟨.hbm, 2991, rfl⟩
abbrev main_v2716 : Ref sig .tc := ⟨.hbm, 2992, rfl⟩
abbrev main_v2717 : Ref sig .tc := ⟨.hbm, 2993, rfl⟩
abbrev main_v2718 : Ref sig .tc := ⟨.hbm, 2994, rfl⟩
abbrev main_v2719 : Ref sig .tc := ⟨.hbm, 2995, rfl⟩
abbrev main_v2720 : Ref sig .tc := ⟨.hbm, 2996, rfl⟩
abbrev main_cst_270 : Ref sig .tc := ⟨.hbm, 2997, rfl⟩
abbrev main_v2721 : Ref sig .tc := ⟨.hbm, 2998, rfl⟩
abbrev main_c_271 : Ref sig .tc := ⟨.hbm, 2999, rfl⟩
abbrev main_v2722 : Ref sig .tc := ⟨.hbm, 3000, rfl⟩
abbrev main_v2723 : Ref sig .tc := ⟨.hbm, 3001, rfl⟩
abbrev main_v2724 : Ref sig .tc := ⟨.hbm, 3002, rfl⟩
abbrev main_v2725 : Ref sig .tc := ⟨.hbm, 3003, rfl⟩
abbrev main_v2726 : Ref sig .tc := ⟨.hbm, 3004, rfl⟩
abbrev main_v2727 : Ref sig .tc := ⟨.hbm, 3005, rfl⟩
abbrev main_v2728 : Ref sig .tc := ⟨.hbm, 3006, rfl⟩
abbrev main_v2729 : Ref sig .tc := ⟨.hbm, 3007, rfl⟩
abbrev main_v2730 : Ref sig .tc := ⟨.hbm, 3008, rfl⟩
abbrev main_v2731 : Ref sig .tc := ⟨.hbm, 3009, rfl⟩
abbrev main_v2732 : Ref sig .tc := ⟨.hbm, 3010, rfl⟩
abbrev main_v2733 : Ref sig .tc := ⟨.hbm, 3011, rfl⟩
abbrev main_v2734 : Ref sig .tc := ⟨.hbm, 3012, rfl⟩
abbrev main_v2735 : Ref sig .tc := ⟨.hbm, 3013, rfl⟩
abbrev main_v2736 : Ref sig .tc := ⟨.hbm, 3014, rfl⟩
abbrev main_v2737 : Ref sig .tc := ⟨.hbm, 3015, rfl⟩
abbrev main_v2738 : Ref sig .tc := ⟨.hbm, 3016, rfl⟩
abbrev main_v2739 : Ref sig .tc := ⟨.hbm, 3017, rfl⟩
abbrev main_v2740 : Ref sig .tc := ⟨.hbm, 3018, rfl⟩
abbrev main_cst_272 : Ref sig .tc := ⟨.hbm, 3019, rfl⟩
abbrev main_v2741 : Ref sig .tc := ⟨.hbm, 3020, rfl⟩
abbrev main_c_273 : Ref sig .tc := ⟨.hbm, 3021, rfl⟩
abbrev main_v2742 : Ref sig .tc := ⟨.hbm, 3022, rfl⟩
abbrev main_v2743 : Ref sig .tc := ⟨.hbm, 3023, rfl⟩
abbrev main_v2744 : Ref sig .tc := ⟨.hbm, 3024, rfl⟩
abbrev main_v2745 : Ref sig .tc := ⟨.hbm, 3025, rfl⟩
abbrev main_v2746 : Ref sig .tc := ⟨.hbm, 3026, rfl⟩
abbrev main_v2747 : Ref sig .tc := ⟨.hbm, 3027, rfl⟩
abbrev main_v2748 : Ref sig .tc := ⟨.hbm, 3028, rfl⟩
abbrev main_v2749 : Ref sig .tc := ⟨.hbm, 3029, rfl⟩
abbrev main_v2750 : Ref sig .tc := ⟨.hbm, 3030, rfl⟩
abbrev main_v2751 : Ref sig .tc := ⟨.hbm, 3031, rfl⟩
abbrev main_v2752 : Ref sig .tc := ⟨.hbm, 3032, rfl⟩
abbrev main_v2753 : Ref sig .tc := ⟨.hbm, 3033, rfl⟩
abbrev main_v2754 : Ref sig .tc := ⟨.hbm, 3034, rfl⟩
abbrev main_v2755 : Ref sig .tc := ⟨.hbm, 3035, rfl⟩
abbrev main_v2756 : Ref sig .tc := ⟨.hbm, 3036, rfl⟩
abbrev main_v2757 : Ref sig .tc := ⟨.hbm, 3037, rfl⟩
abbrev main_v2758 : Ref sig .tc := ⟨.hbm, 3038, rfl⟩
abbrev main_v2759 : Ref sig .tc := ⟨.hbm, 3039, rfl⟩
abbrev main_v2760 : Ref sig .tc := ⟨.hbm, 3040, rfl⟩
abbrev main_cst_274 : Ref sig .tc := ⟨.hbm, 3041, rfl⟩
abbrev main_v2761 : Ref sig .tc := ⟨.hbm, 3042, rfl⟩
abbrev main_c_275 : Ref sig .tc := ⟨.hbm, 3043, rfl⟩
abbrev main_v2762 : Ref sig .tc := ⟨.hbm, 3044, rfl⟩
abbrev main_v2763 : Ref sig .tc := ⟨.hbm, 3045, rfl⟩
abbrev main_v2764 : Ref sig .tc := ⟨.hbm, 3046, rfl⟩
abbrev main_v2765 : Ref sig .tc := ⟨.hbm, 3047, rfl⟩
abbrev main_v2766 : Ref sig .tc := ⟨.hbm, 3048, rfl⟩
abbrev main_v2767 : Ref sig .tc := ⟨.hbm, 3049, rfl⟩
abbrev main_v2768 : Ref sig .tc := ⟨.hbm, 3050, rfl⟩
abbrev main_v2769 : Ref sig .tc := ⟨.hbm, 3051, rfl⟩
abbrev main_v2770 : Ref sig .tc := ⟨.hbm, 3052, rfl⟩
abbrev main_v2771 : Ref sig .tc := ⟨.hbm, 3053, rfl⟩
abbrev main_v2772 : Ref sig .tc := ⟨.hbm, 3054, rfl⟩
abbrev main_v2773 : Ref sig .tc := ⟨.hbm, 3055, rfl⟩
abbrev main_v2774 : Ref sig .tc := ⟨.hbm, 3056, rfl⟩
abbrev main_v2775 : Ref sig .tc := ⟨.hbm, 3057, rfl⟩
abbrev main_v2776 : Ref sig .tc := ⟨.hbm, 3058, rfl⟩
abbrev main_v2777 : Ref sig .tc := ⟨.hbm, 3059, rfl⟩
abbrev main_v2778 : Ref sig .tc := ⟨.hbm, 3060, rfl⟩
abbrev main_v2779 : Ref sig .tc := ⟨.hbm, 3061, rfl⟩
abbrev main_v2780 : Ref sig .tc := ⟨.hbm, 3062, rfl⟩
abbrev main_cst_276 : Ref sig .tc := ⟨.hbm, 3063, rfl⟩
abbrev main_v2781 : Ref sig .tc := ⟨.hbm, 3064, rfl⟩
abbrev main_c_277 : Ref sig .tc := ⟨.hbm, 3065, rfl⟩
abbrev main_v2782 : Ref sig .tc := ⟨.hbm, 3066, rfl⟩
abbrev main_v2783 : Ref sig .tc := ⟨.hbm, 3067, rfl⟩
abbrev main_v2784 : Ref sig .tc := ⟨.hbm, 3068, rfl⟩
abbrev main_v2785 : Ref sig .tc := ⟨.hbm, 3069, rfl⟩
abbrev main_v2786 : Ref sig .tc := ⟨.hbm, 3070, rfl⟩
abbrev main_v2787 : Ref sig .tc := ⟨.hbm, 3071, rfl⟩
abbrev main_v2788 : Ref sig .tc := ⟨.hbm, 3072, rfl⟩
abbrev main_v2789 : Ref sig .tc := ⟨.hbm, 3073, rfl⟩
abbrev main_v2790 : Ref sig .tc := ⟨.hbm, 3074, rfl⟩
abbrev main_v2791 : Ref sig .tc := ⟨.hbm, 3075, rfl⟩
abbrev main_v2792 : Ref sig .tc := ⟨.hbm, 3076, rfl⟩
abbrev main_v2793 : Ref sig .tc := ⟨.hbm, 3077, rfl⟩
abbrev main_v2794 : Ref sig .tc := ⟨.hbm, 3078, rfl⟩
abbrev main_v2795 : Ref sig .tc := ⟨.hbm, 3079, rfl⟩
abbrev main_v2796 : Ref sig .tc := ⟨.hbm, 3080, rfl⟩
abbrev main_v2797 : Ref sig .tc := ⟨.hbm, 3081, rfl⟩
abbrev main_v2798 : Ref sig .tc := ⟨.hbm, 3082, rfl⟩
abbrev main_v2799 : Ref sig .tc := ⟨.hbm, 3083, rfl⟩
abbrev main_v2800 : Ref sig .tc := ⟨.hbm, 3084, rfl⟩
abbrev main_cst_278 : Ref sig .tc := ⟨.hbm, 3085, rfl⟩
abbrev main_v2801 : Ref sig .tc := ⟨.hbm, 3086, rfl⟩
abbrev main_c_279 : Ref sig .tc := ⟨.hbm, 3087, rfl⟩
abbrev main_v2802 : Ref sig .tc := ⟨.hbm, 3088, rfl⟩
abbrev main_v2803 : Ref sig .tc := ⟨.hbm, 3089, rfl⟩
abbrev main_v2804 : Ref sig .tc := ⟨.hbm, 3090, rfl⟩
abbrev main_v2805 : Ref sig .tc := ⟨.hbm, 3091, rfl⟩
abbrev main_v2806 : Ref sig .tc := ⟨.hbm, 3092, rfl⟩
abbrev main_v2807 : Ref sig .tc := ⟨.hbm, 3093, rfl⟩
abbrev main_v2808 : Ref sig .tc := ⟨.hbm, 3094, rfl⟩
abbrev main_v2809 : Ref sig .tc := ⟨.hbm, 3095, rfl⟩
abbrev main_v2810 : Ref sig .tc := ⟨.hbm, 3096, rfl⟩
abbrev main_v2811 : Ref sig .tc := ⟨.hbm, 3097, rfl⟩
abbrev main_v2812 : Ref sig .tc := ⟨.hbm, 3098, rfl⟩
abbrev main_v2813 : Ref sig .tc := ⟨.hbm, 3099, rfl⟩
abbrev main_v2814 : Ref sig .tc := ⟨.hbm, 3100, rfl⟩
abbrev main_v2815 : Ref sig .tc := ⟨.hbm, 3101, rfl⟩
abbrev main_v2816 : Ref sig .tc := ⟨.hbm, 3102, rfl⟩
abbrev main_v2817 : Ref sig .tc := ⟨.hbm, 3103, rfl⟩
abbrev main_v2818 : Ref sig .tc := ⟨.hbm, 3104, rfl⟩
abbrev main_v2819 : Ref sig .tc := ⟨.hbm, 3105, rfl⟩
abbrev main_v2820 : Ref sig .tc := ⟨.hbm, 3106, rfl⟩
abbrev main_cst_280 : Ref sig .tc := ⟨.hbm, 3107, rfl⟩
abbrev main_v2821 : Ref sig .tc := ⟨.hbm, 3108, rfl⟩
abbrev main_c_281 : Ref sig .tc := ⟨.hbm, 3109, rfl⟩
abbrev main_v2822 : Ref sig .tc := ⟨.hbm, 3110, rfl⟩
abbrev main_v2823 : Ref sig .tc := ⟨.hbm, 3111, rfl⟩
abbrev main_v2824 : Ref sig .tc := ⟨.hbm, 3112, rfl⟩
abbrev main_v2825 : Ref sig .tc := ⟨.hbm, 3113, rfl⟩
abbrev main_v2826 : Ref sig .tc := ⟨.hbm, 3114, rfl⟩
abbrev main_v2827 : Ref sig .tc := ⟨.hbm, 3115, rfl⟩
abbrev main_v2828 : Ref sig .tc := ⟨.hbm, 3116, rfl⟩
abbrev main_v2829 : Ref sig .tc := ⟨.hbm, 3117, rfl⟩
abbrev main_v2830 : Ref sig .tc := ⟨.hbm, 3118, rfl⟩
abbrev main_v2831 : Ref sig .tc := ⟨.hbm, 3119, rfl⟩
abbrev main_v2832 : Ref sig .tc := ⟨.hbm, 3120, rfl⟩
abbrev main_v2833 : Ref sig .tc := ⟨.hbm, 3121, rfl⟩
abbrev main_v2834 : Ref sig .tc := ⟨.hbm, 3122, rfl⟩
abbrev main_v2835 : Ref sig .tc := ⟨.hbm, 3123, rfl⟩
abbrev main_v2836 : Ref sig .tc := ⟨.hbm, 3124, rfl⟩
abbrev main_v2837 : Ref sig .tc := ⟨.hbm, 3125, rfl⟩
abbrev main_v2838 : Ref sig .tc := ⟨.hbm, 3126, rfl⟩
abbrev main_v2839 : Ref sig .tc := ⟨.hbm, 3127, rfl⟩
abbrev main_v2840 : Ref sig .tc := ⟨.hbm, 3128, rfl⟩
abbrev main_cst_282 : Ref sig .tc := ⟨.hbm, 3129, rfl⟩
abbrev main_v2841 : Ref sig .tc := ⟨.hbm, 3130, rfl⟩
abbrev main_c_283 : Ref sig .tc := ⟨.hbm, 3131, rfl⟩
abbrev main_v2842 : Ref sig .tc := ⟨.hbm, 3132, rfl⟩
abbrev main_v2843 : Ref sig .tc := ⟨.hbm, 3133, rfl⟩
abbrev main_v2844 : Ref sig .tc := ⟨.hbm, 3134, rfl⟩
abbrev main_v2845 : Ref sig .tc := ⟨.hbm, 3135, rfl⟩
abbrev main_v2846 : Ref sig .tc := ⟨.hbm, 3136, rfl⟩
abbrev main_v2847 : Ref sig .tc := ⟨.hbm, 3137, rfl⟩
abbrev main_v2848 : Ref sig .tc := ⟨.hbm, 3138, rfl⟩
abbrev main_v2849 : Ref sig .tc := ⟨.hbm, 3139, rfl⟩
abbrev main_v2850 : Ref sig .tc := ⟨.hbm, 3140, rfl⟩
abbrev main_v2851 : Ref sig .tc := ⟨.hbm, 3141, rfl⟩
abbrev main_v2852 : Ref sig .tc := ⟨.hbm, 3142, rfl⟩
abbrev main_v2853 : Ref sig .tc := ⟨.hbm, 3143, rfl⟩
abbrev main_v2854 : Ref sig .tc := ⟨.hbm, 3144, rfl⟩
abbrev main_v2855 : Ref sig .tc := ⟨.hbm, 3145, rfl⟩
abbrev main_v2856 : Ref sig .tc := ⟨.hbm, 3146, rfl⟩
abbrev main_v2857 : Ref sig .tc := ⟨.hbm, 3147, rfl⟩
abbrev main_v2858 : Ref sig .tc := ⟨.hbm, 3148, rfl⟩
abbrev main_v2859 : Ref sig .tc := ⟨.hbm, 3149, rfl⟩
abbrev main_v2860 : Ref sig .tc := ⟨.hbm, 3150, rfl⟩
abbrev main_cst_284 : Ref sig .tc := ⟨.hbm, 3151, rfl⟩
abbrev main_v2861 : Ref sig .tc := ⟨.hbm, 3152, rfl⟩
abbrev main_c_285 : Ref sig .tc := ⟨.hbm, 3153, rfl⟩
abbrev main_v2862 : Ref sig .tc := ⟨.hbm, 3154, rfl⟩
abbrev main_v2863 : Ref sig .tc := ⟨.hbm, 3155, rfl⟩
abbrev main_v2864 : Ref sig .tc := ⟨.hbm, 3156, rfl⟩
abbrev main_v2865 : Ref sig .tc := ⟨.hbm, 3157, rfl⟩
abbrev main_v2866 : Ref sig .tc := ⟨.hbm, 3158, rfl⟩
abbrev main_v2867 : Ref sig .tc := ⟨.hbm, 3159, rfl⟩
abbrev main_v2868 : Ref sig .tc := ⟨.hbm, 3160, rfl⟩
abbrev main_v2869 : Ref sig .tc := ⟨.hbm, 3161, rfl⟩
abbrev main_v2870 : Ref sig .tc := ⟨.hbm, 3162, rfl⟩
abbrev main_v2871 : Ref sig .tc := ⟨.hbm, 3163, rfl⟩
abbrev main_v2872 : Ref sig .tc := ⟨.hbm, 3164, rfl⟩
abbrev main_v2873 : Ref sig .tc := ⟨.hbm, 3165, rfl⟩
abbrev main_v2874 : Ref sig .tc := ⟨.hbm, 3166, rfl⟩
abbrev main_v2875 : Ref sig .tc := ⟨.hbm, 3167, rfl⟩
abbrev main_v2876 : Ref sig .tc := ⟨.hbm, 3168, rfl⟩
abbrev main_v2877 : Ref sig .tc := ⟨.hbm, 3169, rfl⟩
abbrev main_v2878 : Ref sig .tc := ⟨.hbm, 3170, rfl⟩
abbrev main_v2879 : Ref sig .tc := ⟨.hbm, 3171, rfl⟩
abbrev main_v2880 : Ref sig .tc := ⟨.hbm, 3172, rfl⟩
abbrev main_cst_286 : Ref sig .tc := ⟨.hbm, 3173, rfl⟩
abbrev main_v2881 : Ref sig .tc := ⟨.hbm, 3174, rfl⟩
abbrev main_c_287 : Ref sig .tc := ⟨.hbm, 3175, rfl⟩
abbrev main_v2882 : Ref sig .tc := ⟨.hbm, 3176, rfl⟩
abbrev main_v2883 : Ref sig .tc := ⟨.hbm, 3177, rfl⟩
abbrev main_v2884 : Ref sig .tc := ⟨.hbm, 3178, rfl⟩
abbrev main_v2885 : Ref sig .tc := ⟨.hbm, 3179, rfl⟩
abbrev main_v2886 : Ref sig .tc := ⟨.hbm, 3180, rfl⟩
abbrev main_v2887 : Ref sig .tc := ⟨.hbm, 3181, rfl⟩
abbrev main_v2888 : Ref sig .tc := ⟨.hbm, 3182, rfl⟩
abbrev main_v2889 : Ref sig .tc := ⟨.hbm, 3183, rfl⟩
abbrev main_v2890 : Ref sig .tc := ⟨.hbm, 3184, rfl⟩
abbrev main_v2891 : Ref sig .tc := ⟨.hbm, 3185, rfl⟩
abbrev main_v2892 : Ref sig .tc := ⟨.hbm, 3186, rfl⟩
abbrev main_v2893 : Ref sig .tc := ⟨.hbm, 3187, rfl⟩
abbrev main_v2894 : Ref sig .tc := ⟨.hbm, 3188, rfl⟩
abbrev main_v2895 : Ref sig .tc := ⟨.hbm, 3189, rfl⟩
abbrev main_v2896 : Ref sig .tc := ⟨.hbm, 3190, rfl⟩
abbrev main_v2897 : Ref sig .tc := ⟨.hbm, 3191, rfl⟩
abbrev main_v2898 : Ref sig .tc := ⟨.hbm, 3192, rfl⟩
abbrev main_v2899 : Ref sig .tc := ⟨.hbm, 3193, rfl⟩
abbrev main_v2900 : Ref sig .tc := ⟨.hbm, 3194, rfl⟩
abbrev main_cst_288 : Ref sig .tc := ⟨.hbm, 3195, rfl⟩
abbrev main_v2901 : Ref sig .tc := ⟨.hbm, 3196, rfl⟩
abbrev main_c_289 : Ref sig .tc := ⟨.hbm, 3197, rfl⟩
abbrev main_v2902 : Ref sig .tc := ⟨.hbm, 3198, rfl⟩
abbrev main_v2903 : Ref sig .tc := ⟨.hbm, 3199, rfl⟩
abbrev main_v2904 : Ref sig .tc := ⟨.hbm, 3200, rfl⟩
abbrev main_v2905 : Ref sig .tc := ⟨.hbm, 3201, rfl⟩
abbrev main_v2906 : Ref sig .tc := ⟨.hbm, 3202, rfl⟩
abbrev main_v2907 : Ref sig .tc := ⟨.hbm, 3203, rfl⟩
abbrev main_v2908 : Ref sig .tc := ⟨.hbm, 3204, rfl⟩
abbrev main_v2909 : Ref sig .tc := ⟨.hbm, 3205, rfl⟩
abbrev main_v2910 : Ref sig .tc := ⟨.hbm, 3206, rfl⟩
abbrev main_v2911 : Ref sig .tc := ⟨.hbm, 3207, rfl⟩
abbrev main_v2912 : Ref sig .tc := ⟨.hbm, 3208, rfl⟩
abbrev main_v2913 : Ref sig .tc := ⟨.hbm, 3209, rfl⟩
abbrev main_v2914 : Ref sig .tc := ⟨.hbm, 3210, rfl⟩
abbrev main_v2915 : Ref sig .tc := ⟨.hbm, 3211, rfl⟩
abbrev main_v2916 : Ref sig .tc := ⟨.hbm, 3212, rfl⟩
abbrev main_v2917 : Ref sig .tc := ⟨.hbm, 3213, rfl⟩
abbrev main_v2918 : Ref sig .tc := ⟨.hbm, 3214, rfl⟩
abbrev main_v2919 : Ref sig .tc := ⟨.hbm, 3215, rfl⟩
abbrev main_v2920 : Ref sig .tc := ⟨.hbm, 3216, rfl⟩
abbrev main_cst_290 : Ref sig .tc := ⟨.hbm, 3217, rfl⟩
abbrev main_v2921 : Ref sig .tc := ⟨.hbm, 3218, rfl⟩
abbrev main_c_291 : Ref sig .tc := ⟨.hbm, 3219, rfl⟩
abbrev main_v2922 : Ref sig .tc := ⟨.hbm, 3220, rfl⟩
abbrev main_v2923 : Ref sig .tc := ⟨.hbm, 3221, rfl⟩
abbrev main_v2924 : Ref sig .tc := ⟨.hbm, 3222, rfl⟩
abbrev main_v2925 : Ref sig .tc := ⟨.hbm, 3223, rfl⟩
abbrev main_v2926 : Ref sig .tc := ⟨.hbm, 3224, rfl⟩
abbrev main_v2927 : Ref sig .tc := ⟨.hbm, 3225, rfl⟩
abbrev main_v2928 : Ref sig .tc := ⟨.hbm, 3226, rfl⟩
abbrev main_v2929 : Ref sig .tc := ⟨.hbm, 3227, rfl⟩
abbrev main_v2930 : Ref sig .tc := ⟨.hbm, 3228, rfl⟩
abbrev main_v2931 : Ref sig .tc := ⟨.hbm, 3229, rfl⟩
abbrev main_v2932 : Ref sig .tc := ⟨.hbm, 3230, rfl⟩
abbrev main_v2933 : Ref sig .tc := ⟨.hbm, 3231, rfl⟩
abbrev main_v2934 : Ref sig .tc := ⟨.hbm, 3232, rfl⟩
abbrev main_v2935 : Ref sig .tc := ⟨.hbm, 3233, rfl⟩
abbrev main_v2936 : Ref sig .tc := ⟨.hbm, 3234, rfl⟩
abbrev main_v2937 : Ref sig .tc := ⟨.hbm, 3235, rfl⟩
abbrev main_v2938 : Ref sig .tc := ⟨.hbm, 3236, rfl⟩
abbrev main_v2939 : Ref sig .tc := ⟨.hbm, 3237, rfl⟩
abbrev main_v2940 : Ref sig .tc := ⟨.hbm, 3238, rfl⟩
abbrev main_cst_292 : Ref sig .tc := ⟨.hbm, 3239, rfl⟩
abbrev main_v2941 : Ref sig .tc := ⟨.hbm, 3240, rfl⟩
abbrev main_c_293 : Ref sig .tc := ⟨.hbm, 3241, rfl⟩
abbrev main_v2942 : Ref sig .tc := ⟨.hbm, 3242, rfl⟩
abbrev main_v2943 : Ref sig .tc := ⟨.hbm, 3243, rfl⟩
abbrev main_v2944 : Ref sig .tc := ⟨.hbm, 3244, rfl⟩
abbrev main_v2945 : Ref sig .tc := ⟨.hbm, 3245, rfl⟩
abbrev main_v2946 : Ref sig .tc := ⟨.hbm, 3246, rfl⟩
abbrev main_v2947 : Ref sig .tc := ⟨.hbm, 3247, rfl⟩
abbrev main_v2948 : Ref sig .tc := ⟨.hbm, 3248, rfl⟩
abbrev main_v2949 : Ref sig .tc := ⟨.hbm, 3249, rfl⟩
abbrev main_v2950 : Ref sig .tc := ⟨.hbm, 3250, rfl⟩
abbrev main_v2951 : Ref sig .tc := ⟨.hbm, 3251, rfl⟩
abbrev main_v2952 : Ref sig .tc := ⟨.hbm, 3252, rfl⟩
abbrev main_v2953 : Ref sig .tc := ⟨.hbm, 3253, rfl⟩
abbrev main_v2954 : Ref sig .tc := ⟨.hbm, 3254, rfl⟩
abbrev main_v2955 : Ref sig .tc := ⟨.hbm, 3255, rfl⟩
abbrev main_v2956 : Ref sig .tc := ⟨.hbm, 3256, rfl⟩
abbrev main_v2957 : Ref sig .tc := ⟨.hbm, 3257, rfl⟩
abbrev main_v2958 : Ref sig .tc := ⟨.hbm, 3258, rfl⟩
abbrev main_v2959 : Ref sig .tc := ⟨.hbm, 3259, rfl⟩
abbrev main_v2960 : Ref sig .tc := ⟨.hbm, 3260, rfl⟩
abbrev main_cst_294 : Ref sig .tc := ⟨.hbm, 3261, rfl⟩
abbrev main_v2961 : Ref sig .tc := ⟨.hbm, 3262, rfl⟩
abbrev main_c_295 : Ref sig .tc := ⟨.hbm, 3263, rfl⟩
abbrev main_v2962 : Ref sig .tc := ⟨.hbm, 3264, rfl⟩
abbrev main_v2963 : Ref sig .tc := ⟨.hbm, 3265, rfl⟩
abbrev main_v2964 : Ref sig .tc := ⟨.hbm, 3266, rfl⟩
abbrev main_v2965 : Ref sig .tc := ⟨.hbm, 3267, rfl⟩
abbrev main_v2966 : Ref sig .tc := ⟨.hbm, 3268, rfl⟩
abbrev main_v2967 : Ref sig .tc := ⟨.hbm, 3269, rfl⟩
abbrev main_v2968 : Ref sig .tc := ⟨.hbm, 3270, rfl⟩
abbrev main_v2969 : Ref sig .tc := ⟨.hbm, 3271, rfl⟩
abbrev main_v2970 : Ref sig .tc := ⟨.hbm, 3272, rfl⟩
abbrev main_v2971 : Ref sig .tc := ⟨.hbm, 3273, rfl⟩
abbrev main_v2972 : Ref sig .tc := ⟨.hbm, 3274, rfl⟩
abbrev main_v2973 : Ref sig .tc := ⟨.hbm, 3275, rfl⟩
abbrev main_v2974 : Ref sig .tc := ⟨.hbm, 3276, rfl⟩
abbrev main_v2975 : Ref sig .tc := ⟨.hbm, 3277, rfl⟩
abbrev main_v2976 : Ref sig .tc := ⟨.hbm, 3278, rfl⟩
abbrev main_v2977 : Ref sig .tc := ⟨.hbm, 3279, rfl⟩
abbrev main_v2978 : Ref sig .tc := ⟨.hbm, 3280, rfl⟩
abbrev main_v2979 : Ref sig .tc := ⟨.hbm, 3281, rfl⟩
abbrev main_v2980 : Ref sig .tc := ⟨.hbm, 3282, rfl⟩
abbrev main_cst_296 : Ref sig .tc := ⟨.hbm, 3283, rfl⟩
abbrev main_v2981 : Ref sig .tc := ⟨.hbm, 3284, rfl⟩
abbrev main_c_297 : Ref sig .tc := ⟨.hbm, 3285, rfl⟩
abbrev main_v2982 : Ref sig .tc := ⟨.hbm, 3286, rfl⟩
abbrev main_v2983 : Ref sig .tc := ⟨.hbm, 3287, rfl⟩
abbrev main_v2984 : Ref sig .tc := ⟨.hbm, 3288, rfl⟩
abbrev main_v2985 : Ref sig .tc := ⟨.hbm, 3289, rfl⟩
abbrev main_v2986 : Ref sig .tc := ⟨.hbm, 3290, rfl⟩
abbrev main_v2987 : Ref sig .tc := ⟨.hbm, 3291, rfl⟩
abbrev main_v2988 : Ref sig .tc := ⟨.hbm, 3292, rfl⟩
abbrev main_v2989 : Ref sig .tc := ⟨.hbm, 3293, rfl⟩
abbrev main_v2990 : Ref sig .tc := ⟨.hbm, 3294, rfl⟩
abbrev main_v2991 : Ref sig .tc := ⟨.hbm, 3295, rfl⟩
abbrev main_v2992 : Ref sig .tc := ⟨.hbm, 3296, rfl⟩
abbrev main_v2993 : Ref sig .tc := ⟨.hbm, 3297, rfl⟩
abbrev main_v2994 : Ref sig .tc := ⟨.hbm, 3298, rfl⟩
abbrev main_v2995 : Ref sig .tc := ⟨.hbm, 3299, rfl⟩
abbrev main_v2996 : Ref sig .tc := ⟨.hbm, 3300, rfl⟩
abbrev main_v2997 : Ref sig .tc := ⟨.hbm, 3301, rfl⟩
abbrev main_v2998 : Ref sig .tc := ⟨.hbm, 3302, rfl⟩
abbrev main_v2999 : Ref sig .tc := ⟨.hbm, 3303, rfl⟩
abbrev main_v3000 : Ref sig .tc := ⟨.hbm, 3304, rfl⟩
abbrev main_cst_298 : Ref sig .tc := ⟨.hbm, 3305, rfl⟩
abbrev main_v3001 : Ref sig .tc := ⟨.hbm, 3306, rfl⟩
abbrev main_c_299 : Ref sig .tc := ⟨.hbm, 3307, rfl⟩
abbrev main_v3002 : Ref sig .tc := ⟨.hbm, 3308, rfl⟩
abbrev main_v3003 : Ref sig .tc := ⟨.hbm, 3309, rfl⟩
abbrev main_v3004 : Ref sig .tc := ⟨.hbm, 3310, rfl⟩
abbrev main_v3005 : Ref sig .tc := ⟨.hbm, 3311, rfl⟩
abbrev main_v3006 : Ref sig .tc := ⟨.hbm, 3312, rfl⟩
abbrev main_v3007 : Ref sig .tc := ⟨.hbm, 3313, rfl⟩
abbrev main_v3008 : Ref sig .tc := ⟨.hbm, 3314, rfl⟩
abbrev main_v3009 : Ref sig .tc := ⟨.hbm, 3315, rfl⟩
abbrev main_v3010 : Ref sig .tc := ⟨.hbm, 3316, rfl⟩
abbrev main_v3011 : Ref sig .tc := ⟨.hbm, 3317, rfl⟩
abbrev main_v3012 : Ref sig .tc := ⟨.hbm, 3318, rfl⟩
abbrev main_v3013 : Ref sig .tc := ⟨.hbm, 3319, rfl⟩
abbrev main_v3014 : Ref sig .tc := ⟨.hbm, 3320, rfl⟩
abbrev main_v3015 : Ref sig .tc := ⟨.hbm, 3321, rfl⟩
abbrev main_v3016 : Ref sig .tc := ⟨.hbm, 3322, rfl⟩
abbrev main_v3017 : Ref sig .tc := ⟨.hbm, 3323, rfl⟩
abbrev main_v3018 : Ref sig .tc := ⟨.hbm, 3324, rfl⟩
abbrev main_v3019 : Ref sig .tc := ⟨.hbm, 3325, rfl⟩
abbrev main_v3020 : Ref sig .tc := ⟨.hbm, 3326, rfl⟩
abbrev main_cst_300 : Ref sig .tc := ⟨.hbm, 3327, rfl⟩
abbrev main_v3021 : Ref sig .tc := ⟨.hbm, 3328, rfl⟩
abbrev main_c_301 : Ref sig .tc := ⟨.hbm, 3329, rfl⟩
abbrev main_v3022 : Ref sig .tc := ⟨.hbm, 3330, rfl⟩
abbrev main_v3023 : Ref sig .tc := ⟨.hbm, 3331, rfl⟩
abbrev main_v3024 : Ref sig .tc := ⟨.hbm, 3332, rfl⟩
abbrev main_v3025 : Ref sig .tc := ⟨.hbm, 3333, rfl⟩
abbrev main_v3026 : Ref sig .tc := ⟨.hbm, 3334, rfl⟩
abbrev main_v3027 : Ref sig .tc := ⟨.hbm, 3335, rfl⟩
abbrev main_v3028 : Ref sig .tc := ⟨.hbm, 3336, rfl⟩
abbrev main_v3029 : Ref sig .tc := ⟨.hbm, 3337, rfl⟩
abbrev main_v3030 : Ref sig .tc := ⟨.hbm, 3338, rfl⟩
abbrev main_v3031 : Ref sig .tc := ⟨.hbm, 3339, rfl⟩
abbrev main_v3032 : Ref sig .tc := ⟨.hbm, 3340, rfl⟩
abbrev main_v3033 : Ref sig .tc := ⟨.hbm, 3341, rfl⟩
abbrev main_v3034 : Ref sig .tc := ⟨.hbm, 3342, rfl⟩
abbrev main_v3035 : Ref sig .tc := ⟨.hbm, 3343, rfl⟩
abbrev main_v3036 : Ref sig .tc := ⟨.hbm, 3344, rfl⟩
abbrev main_v3037 : Ref sig .tc := ⟨.hbm, 3345, rfl⟩
abbrev main_v3038 : Ref sig .tc := ⟨.hbm, 3346, rfl⟩
abbrev main_v3039 : Ref sig .tc := ⟨.hbm, 3347, rfl⟩
abbrev main_v3040 : Ref sig .tc := ⟨.hbm, 3348, rfl⟩
abbrev main_cst_302 : Ref sig .tc := ⟨.hbm, 3349, rfl⟩
abbrev main_v3041 : Ref sig .tc := ⟨.hbm, 3350, rfl⟩
abbrev main_c_303 : Ref sig .tc := ⟨.hbm, 3351, rfl⟩
abbrev main_v3042 : Ref sig .tc := ⟨.hbm, 3352, rfl⟩
abbrev main_v3043 : Ref sig .tc := ⟨.hbm, 3353, rfl⟩
abbrev main_v3044 : Ref sig .tc := ⟨.hbm, 3354, rfl⟩
abbrev main_v3045 : Ref sig .tc := ⟨.hbm, 3355, rfl⟩
abbrev main_v3046 : Ref sig .tc := ⟨.hbm, 3356, rfl⟩
abbrev main_v3047 : Ref sig .tc := ⟨.hbm, 3357, rfl⟩
abbrev main_v3048 : Ref sig .tc := ⟨.hbm, 3358, rfl⟩
abbrev main_v3049 : Ref sig .tc := ⟨.hbm, 3359, rfl⟩
abbrev main_v3050 : Ref sig .tc := ⟨.hbm, 3360, rfl⟩
abbrev main_v3051 : Ref sig .tc := ⟨.hbm, 3361, rfl⟩
abbrev main_v3052 : Ref sig .tc := ⟨.hbm, 3362, rfl⟩
abbrev main_v3053 : Ref sig .tc := ⟨.hbm, 3363, rfl⟩
abbrev main_v3054 : Ref sig .tc := ⟨.hbm, 3364, rfl⟩
abbrev main_v3055 : Ref sig .tc := ⟨.hbm, 3365, rfl⟩
abbrev main_v3056 : Ref sig .tc := ⟨.hbm, 3366, rfl⟩
abbrev main_v3057 : Ref sig .tc := ⟨.hbm, 3367, rfl⟩
abbrev main_v3058 : Ref sig .tc := ⟨.hbm, 3368, rfl⟩
abbrev main_v3059 : Ref sig .tc := ⟨.hbm, 3369, rfl⟩
abbrev main_v3060 : Ref sig .tc := ⟨.hbm, 3370, rfl⟩
abbrev main_cst_304 : Ref sig .tc := ⟨.hbm, 3371, rfl⟩
abbrev main_v3061 : Ref sig .tc := ⟨.hbm, 3372, rfl⟩
abbrev main_c_305 : Ref sig .tc := ⟨.hbm, 3373, rfl⟩
abbrev main_v3062 : Ref sig .tc := ⟨.hbm, 3374, rfl⟩
abbrev main_v3063 : Ref sig .tc := ⟨.hbm, 3375, rfl⟩
abbrev main_v3064 : Ref sig .tc := ⟨.hbm, 3376, rfl⟩
abbrev main_v3065 : Ref sig .tc := ⟨.hbm, 3377, rfl⟩
abbrev main_v3066 : Ref sig .tc := ⟨.hbm, 3378, rfl⟩
abbrev main_v3067 : Ref sig .tc := ⟨.hbm, 3379, rfl⟩
abbrev main_v3068 : Ref sig .tc := ⟨.hbm, 3380, rfl⟩
abbrev main_v3069 : Ref sig .tc := ⟨.hbm, 3381, rfl⟩
abbrev main_v3070 : Ref sig .tc := ⟨.hbm, 3382, rfl⟩
abbrev main_v3071 : Ref sig .tc := ⟨.hbm, 3383, rfl⟩
abbrev main_v3072 : Ref sig .tc := ⟨.hbm, 3384, rfl⟩
abbrev main_v3073 : Ref sig .tc := ⟨.hbm, 3385, rfl⟩
abbrev main_v3074 : Ref sig .tc := ⟨.hbm, 3386, rfl⟩
abbrev main_v3075 : Ref sig .tc := ⟨.hbm, 3387, rfl⟩
abbrev main_v3076 : Ref sig .tc := ⟨.hbm, 3388, rfl⟩
abbrev main_v3077 : Ref sig .tc := ⟨.hbm, 3389, rfl⟩
abbrev main_v3078 : Ref sig .tc := ⟨.hbm, 3390, rfl⟩
abbrev main_v3079 : Ref sig .tc := ⟨.hbm, 3391, rfl⟩
abbrev main_v3080 : Ref sig .tc := ⟨.hbm, 3392, rfl⟩
abbrev main_cst_306 : Ref sig .tc := ⟨.hbm, 3393, rfl⟩
abbrev main_v3081 : Ref sig .tc := ⟨.hbm, 3394, rfl⟩
abbrev main_c_307 : Ref sig .tc := ⟨.hbm, 3395, rfl⟩
abbrev main_v3082 : Ref sig .tc := ⟨.hbm, 3396, rfl⟩
abbrev main_v3083 : Ref sig .tc := ⟨.hbm, 3397, rfl⟩
abbrev main_v3084 : Ref sig .tc := ⟨.hbm, 3398, rfl⟩
abbrev main_v3085 : Ref sig .tc := ⟨.hbm, 3399, rfl⟩
abbrev main_v3086 : Ref sig .tc := ⟨.hbm, 3400, rfl⟩
abbrev main_v3087 : Ref sig .tc := ⟨.hbm, 3401, rfl⟩
abbrev main_v3088 : Ref sig .tc := ⟨.hbm, 3402, rfl⟩
abbrev main_v3089 : Ref sig .tc := ⟨.hbm, 3403, rfl⟩
abbrev main_v3090 : Ref sig .tc := ⟨.hbm, 3404, rfl⟩
abbrev main_v3091 : Ref sig .tc := ⟨.hbm, 3405, rfl⟩
abbrev main_v3092 : Ref sig .tc := ⟨.hbm, 3406, rfl⟩
abbrev main_v3093 : Ref sig .tc := ⟨.hbm, 3407, rfl⟩
abbrev main_v3094 : Ref sig .tc := ⟨.hbm, 3408, rfl⟩
abbrev main_v3095 : Ref sig .tc := ⟨.hbm, 3409, rfl⟩
abbrev main_v3096 : Ref sig .tc := ⟨.hbm, 3410, rfl⟩
abbrev main_v3097 : Ref sig .tc := ⟨.hbm, 3411, rfl⟩
abbrev main_v3098 : Ref sig .tc := ⟨.hbm, 3412, rfl⟩
abbrev main_v3099 : Ref sig .tc := ⟨.hbm, 3413, rfl⟩
abbrev main_v3100 : Ref sig .tc := ⟨.hbm, 3414, rfl⟩
abbrev main_cst_308 : Ref sig .tc := ⟨.hbm, 3415, rfl⟩
abbrev main_v3101 : Ref sig .tc := ⟨.hbm, 3416, rfl⟩
abbrev main_c_309 : Ref sig .tc := ⟨.hbm, 3417, rfl⟩
abbrev main_v3102 : Ref sig .tc := ⟨.hbm, 3418, rfl⟩
abbrev main_v3103 : Ref sig .tc := ⟨.hbm, 3419, rfl⟩
abbrev main_v3104 : Ref sig .tc := ⟨.hbm, 3420, rfl⟩
abbrev main_v3105 : Ref sig .tc := ⟨.hbm, 3421, rfl⟩
abbrev main_v3106 : Ref sig .tc := ⟨.hbm, 3422, rfl⟩
abbrev main_v3107 : Ref sig .tc := ⟨.hbm, 3423, rfl⟩
abbrev main_v3108 : Ref sig .tc := ⟨.hbm, 3424, rfl⟩
abbrev main_v3109 : Ref sig .tc := ⟨.hbm, 3425, rfl⟩
abbrev main_v3110 : Ref sig .tc := ⟨.hbm, 3426, rfl⟩
abbrev main_v3111 : Ref sig .tc := ⟨.hbm, 3427, rfl⟩
abbrev main_v3112 : Ref sig .tc := ⟨.hbm, 3428, rfl⟩
abbrev main_v3113 : Ref sig .tc := ⟨.hbm, 3429, rfl⟩
abbrev main_v3114 : Ref sig .tc := ⟨.hbm, 3430, rfl⟩
abbrev main_v3115 : Ref sig .tc := ⟨.hbm, 3431, rfl⟩
abbrev main_v3116 : Ref sig .tc := ⟨.hbm, 3432, rfl⟩
abbrev main_v3117 : Ref sig .tc := ⟨.hbm, 3433, rfl⟩
abbrev main_v3118 : Ref sig .tc := ⟨.hbm, 3434, rfl⟩
abbrev main_v3119 : Ref sig .tc := ⟨.hbm, 3435, rfl⟩
abbrev main_v3120 : Ref sig .tc := ⟨.hbm, 3436, rfl⟩
abbrev main_cst_310 : Ref sig .tc := ⟨.hbm, 3437, rfl⟩
abbrev main_v3121 : Ref sig .tc := ⟨.hbm, 3438, rfl⟩
abbrev main_c_311 : Ref sig .tc := ⟨.hbm, 3439, rfl⟩
abbrev main_v3122 : Ref sig .tc := ⟨.hbm, 3440, rfl⟩
abbrev main_v3123 : Ref sig .tc := ⟨.hbm, 3441, rfl⟩
abbrev main_v3124 : Ref sig .tc := ⟨.hbm, 3442, rfl⟩
abbrev main_v3125 : Ref sig .tc := ⟨.hbm, 3443, rfl⟩
abbrev main_v3126 : Ref sig .tc := ⟨.hbm, 3444, rfl⟩
abbrev main_v3127 : Ref sig .tc := ⟨.hbm, 3445, rfl⟩
abbrev main_v3128 : Ref sig .tc := ⟨.hbm, 3446, rfl⟩
abbrev main_v3129 : Ref sig .tc := ⟨.hbm, 3447, rfl⟩
abbrev main_v3130 : Ref sig .tc := ⟨.hbm, 3448, rfl⟩
abbrev main_v3131 : Ref sig .tc := ⟨.hbm, 3449, rfl⟩
abbrev main_v3132 : Ref sig .tc := ⟨.hbm, 3450, rfl⟩
abbrev main_v3133 : Ref sig .tc := ⟨.hbm, 3451, rfl⟩
abbrev main_v3134 : Ref sig .tc := ⟨.hbm, 3452, rfl⟩
abbrev main_v3135 : Ref sig .tc := ⟨.hbm, 3453, rfl⟩
abbrev main_v3136 : Ref sig .tc := ⟨.hbm, 3454, rfl⟩
abbrev main_v3137 : Ref sig .tc := ⟨.hbm, 3455, rfl⟩
abbrev main_v3138 : Ref sig .tc := ⟨.hbm, 3456, rfl⟩
abbrev main_v3139 : Ref sig .tc := ⟨.hbm, 3457, rfl⟩
abbrev main_v3140 : Ref sig .tc := ⟨.hbm, 3458, rfl⟩
abbrev main_cst_312 : Ref sig .tc := ⟨.hbm, 3459, rfl⟩
abbrev main_v3141 : Ref sig .tc := ⟨.hbm, 3460, rfl⟩
abbrev main_c_313 : Ref sig .tc := ⟨.hbm, 3461, rfl⟩
abbrev main_v3142 : Ref sig .tc := ⟨.hbm, 3462, rfl⟩
abbrev main_v3143 : Ref sig .tc := ⟨.hbm, 3463, rfl⟩
abbrev main_v3144 : Ref sig .tc := ⟨.hbm, 3464, rfl⟩
abbrev main_v3145 : Ref sig .tc := ⟨.hbm, 3465, rfl⟩
abbrev main_v3146 : Ref sig .tc := ⟨.hbm, 3466, rfl⟩
abbrev main_v3147 : Ref sig .tc := ⟨.hbm, 3467, rfl⟩
abbrev main_v3148 : Ref sig .tc := ⟨.hbm, 3468, rfl⟩
abbrev main_v3149 : Ref sig .tc := ⟨.hbm, 3469, rfl⟩
abbrev main_v3150 : Ref sig .tc := ⟨.hbm, 3470, rfl⟩
abbrev main_v3151 : Ref sig .tc := ⟨.hbm, 3471, rfl⟩
abbrev main_v3152 : Ref sig .tc := ⟨.hbm, 3472, rfl⟩
abbrev main_v3153 : Ref sig .tc := ⟨.hbm, 3473, rfl⟩
abbrev main_v3154 : Ref sig .tc := ⟨.hbm, 3474, rfl⟩
abbrev main_v3155 : Ref sig .tc := ⟨.hbm, 3475, rfl⟩
abbrev main_v3156 : Ref sig .tc := ⟨.hbm, 3476, rfl⟩
abbrev main_v3157 : Ref sig .tc := ⟨.hbm, 3477, rfl⟩
abbrev main_v3158 : Ref sig .tc := ⟨.hbm, 3478, rfl⟩
abbrev main_v3159 : Ref sig .tc := ⟨.hbm, 3479, rfl⟩
abbrev main_v3160 : Ref sig .tc := ⟨.hbm, 3480, rfl⟩
abbrev main_cst_314 : Ref sig .tc := ⟨.hbm, 3481, rfl⟩
abbrev main_v3161 : Ref sig .tc := ⟨.hbm, 3482, rfl⟩
abbrev main_c_315 : Ref sig .tc := ⟨.hbm, 3483, rfl⟩
abbrev main_v3162 : Ref sig .tc := ⟨.hbm, 3484, rfl⟩
abbrev main_v3163 : Ref sig .tc := ⟨.hbm, 3485, rfl⟩
abbrev main_v3164 : Ref sig .tc := ⟨.hbm, 3486, rfl⟩
abbrev main_v3165 : Ref sig .tc := ⟨.hbm, 3487, rfl⟩
abbrev main_v3166 : Ref sig .tc := ⟨.hbm, 3488, rfl⟩
abbrev main_v3167 : Ref sig .tc := ⟨.hbm, 3489, rfl⟩
abbrev main_v3168 : Ref sig .tc := ⟨.hbm, 3490, rfl⟩
abbrev main_v3169 : Ref sig .tc := ⟨.hbm, 3491, rfl⟩
abbrev main_v3170 : Ref sig .tc := ⟨.hbm, 3492, rfl⟩
abbrev main_v3171 : Ref sig .tc := ⟨.hbm, 3493, rfl⟩
abbrev main_v3172 : Ref sig .tc := ⟨.hbm, 3494, rfl⟩
abbrev main_v3173 : Ref sig .tc := ⟨.hbm, 3495, rfl⟩
abbrev main_v3174 : Ref sig .tc := ⟨.hbm, 3496, rfl⟩
abbrev main_v3175 : Ref sig .tc := ⟨.hbm, 3497, rfl⟩
abbrev main_v3176 : Ref sig .tc := ⟨.hbm, 3498, rfl⟩
abbrev main_v3177 : Ref sig .tc := ⟨.hbm, 3499, rfl⟩
abbrev main_v3178 : Ref sig .tc := ⟨.hbm, 3500, rfl⟩
abbrev main_v3179 : Ref sig .tc := ⟨.hbm, 3501, rfl⟩
abbrev main_v3180 : Ref sig .tc := ⟨.hbm, 3502, rfl⟩
abbrev main_cst_316 : Ref sig .tc := ⟨.hbm, 3503, rfl⟩
abbrev main_v3181 : Ref sig .tc := ⟨.hbm, 3504, rfl⟩
abbrev main_c_317 : Ref sig .tc := ⟨.hbm, 3505, rfl⟩
abbrev main_v3182 : Ref sig .tc := ⟨.hbm, 3506, rfl⟩
abbrev main_v3183 : Ref sig .tc := ⟨.hbm, 3507, rfl⟩
abbrev main_v3184 : Ref sig .tc := ⟨.hbm, 3508, rfl⟩
abbrev main_v3185 : Ref sig .tc := ⟨.hbm, 3509, rfl⟩
abbrev main_v3186 : Ref sig .tc := ⟨.hbm, 3510, rfl⟩
abbrev main_v3187 : Ref sig .tc := ⟨.hbm, 3511, rfl⟩
abbrev main_v3188 : Ref sig .tc := ⟨.hbm, 3512, rfl⟩
abbrev main_v3189 : Ref sig .tc := ⟨.hbm, 3513, rfl⟩
abbrev main_v3190 : Ref sig .tc := ⟨.hbm, 3514, rfl⟩
abbrev main_v3191 : Ref sig .tc := ⟨.hbm, 3515, rfl⟩
abbrev main_v3192 : Ref sig .tc := ⟨.hbm, 3516, rfl⟩
abbrev main_v3193 : Ref sig .tc := ⟨.hbm, 3517, rfl⟩
abbrev main_v3194 : Ref sig .tc := ⟨.hbm, 3518, rfl⟩
abbrev main_v3195 : Ref sig .tc := ⟨.hbm, 3519, rfl⟩
abbrev main_v3196 : Ref sig .tc := ⟨.hbm, 3520, rfl⟩
abbrev main_v3197 : Ref sig .tc := ⟨.hbm, 3521, rfl⟩
abbrev main_v3198 : Ref sig .tc := ⟨.hbm, 3522, rfl⟩
abbrev main_v3199 : Ref sig .tc := ⟨.hbm, 3523, rfl⟩
abbrev main_v3200 : Ref sig .tc := ⟨.hbm, 3524, rfl⟩
abbrev main_cst_318 : Ref sig .tc := ⟨.hbm, 3525, rfl⟩
abbrev main_v3201 : Ref sig .tc := ⟨.hbm, 3526, rfl⟩
abbrev main_c_319 : Ref sig .tc := ⟨.hbm, 3527, rfl⟩
abbrev main_v3202 : Ref sig .tc := ⟨.hbm, 3528, rfl⟩
abbrev main_v3203 : Ref sig .tc := ⟨.hbm, 3529, rfl⟩
abbrev main_v3204 : Ref sig .tc := ⟨.hbm, 3530, rfl⟩
abbrev main_v3205 : Ref sig .tc := ⟨.hbm, 3531, rfl⟩
abbrev main_v3206 : Ref sig .tc := ⟨.hbm, 3532, rfl⟩
abbrev main_v3207 : Ref sig .tc := ⟨.hbm, 3533, rfl⟩
abbrev main_v3208 : Ref sig .tc := ⟨.hbm, 3534, rfl⟩
abbrev main_v3209 : Ref sig .tc := ⟨.hbm, 3535, rfl⟩
abbrev main_v3210 : Ref sig .tc := ⟨.hbm, 3536, rfl⟩
abbrev main_v3211 : Ref sig .tc := ⟨.hbm, 3537, rfl⟩
abbrev main_v3212 : Ref sig .tc := ⟨.hbm, 3538, rfl⟩
abbrev main_v3213 : Ref sig .tc := ⟨.hbm, 3539, rfl⟩
abbrev main_v3214 : Ref sig .tc := ⟨.hbm, 3540, rfl⟩
abbrev main_v3215 : Ref sig .tc := ⟨.hbm, 3541, rfl⟩
abbrev main_v3216 : Ref sig .tc := ⟨.hbm, 3542, rfl⟩
abbrev main_v3217 : Ref sig .tc := ⟨.hbm, 3543, rfl⟩
abbrev main_v3218 : Ref sig .tc := ⟨.hbm, 3544, rfl⟩
abbrev main_v3219 : Ref sig .tc := ⟨.hbm, 3545, rfl⟩
abbrev main_v3220 : Ref sig .tc := ⟨.hbm, 3546, rfl⟩
abbrev main_cst_320 : Ref sig .tc := ⟨.hbm, 3547, rfl⟩
abbrev main_v3221 : Ref sig .tc := ⟨.hbm, 3548, rfl⟩
abbrev main_c_321 : Ref sig .tc := ⟨.hbm, 3549, rfl⟩
abbrev main_v3222 : Ref sig .tc := ⟨.hbm, 3550, rfl⟩
abbrev main_v3223 : Ref sig .tc := ⟨.hbm, 3551, rfl⟩
abbrev main_v3224 : Ref sig .tc := ⟨.hbm, 3552, rfl⟩
abbrev main_v3225 : Ref sig .tc := ⟨.hbm, 3553, rfl⟩
abbrev main_v3226 : Ref sig .tc := ⟨.hbm, 3554, rfl⟩
abbrev main_v3227 : Ref sig .tc := ⟨.hbm, 3555, rfl⟩
abbrev main_v3228 : Ref sig .tc := ⟨.hbm, 3556, rfl⟩
abbrev main_v3229 : Ref sig .tc := ⟨.hbm, 3557, rfl⟩
abbrev main_v3230 : Ref sig .tc := ⟨.hbm, 3558, rfl⟩
abbrev main_v3231 : Ref sig .tc := ⟨.hbm, 3559, rfl⟩
abbrev main_v3232 : Ref sig .tc := ⟨.hbm, 3560, rfl⟩
abbrev main_v3233 : Ref sig .tc := ⟨.hbm, 3561, rfl⟩
abbrev main_v3234 : Ref sig .tc := ⟨.hbm, 3562, rfl⟩
abbrev main_v3235 : Ref sig .tc := ⟨.hbm, 3563, rfl⟩
abbrev main_v3236 : Ref sig .tc := ⟨.hbm, 3564, rfl⟩
abbrev main_v3237 : Ref sig .tc := ⟨.hbm, 3565, rfl⟩
abbrev main_v3238 : Ref sig .tc := ⟨.hbm, 3566, rfl⟩
abbrev main_v3239 : Ref sig .tc := ⟨.hbm, 3567, rfl⟩
abbrev main_v3240 : Ref sig .tc := ⟨.hbm, 3568, rfl⟩
abbrev main_cst_322 : Ref sig .tc := ⟨.hbm, 3569, rfl⟩
abbrev main_v3241 : Ref sig .tc := ⟨.hbm, 3570, rfl⟩
abbrev main_c_323 : Ref sig .tc := ⟨.hbm, 3571, rfl⟩
abbrev main_v3242 : Ref sig .tc := ⟨.hbm, 3572, rfl⟩
abbrev main_v3243 : Ref sig .tc := ⟨.hbm, 3573, rfl⟩
abbrev main_v3244 : Ref sig .tc := ⟨.hbm, 3574, rfl⟩
abbrev main_v3245 : Ref sig .tc := ⟨.hbm, 3575, rfl⟩
abbrev main_v3246 : Ref sig .tc := ⟨.hbm, 3576, rfl⟩
abbrev main_v3247 : Ref sig .tc := ⟨.hbm, 3577, rfl⟩
abbrev main_v3248 : Ref sig .tc := ⟨.hbm, 3578, rfl⟩
abbrev main_v3249 : Ref sig .tc := ⟨.hbm, 3579, rfl⟩
abbrev main_v3250 : Ref sig .tc := ⟨.hbm, 3580, rfl⟩
abbrev main_v3251 : Ref sig .tc := ⟨.hbm, 3581, rfl⟩
abbrev main_v3252 : Ref sig .tc := ⟨.hbm, 3582, rfl⟩
abbrev main_v3253 : Ref sig .tc := ⟨.hbm, 3583, rfl⟩
abbrev main_v3254 : Ref sig .tc := ⟨.hbm, 3584, rfl⟩
abbrev main_v3255 : Ref sig .tc := ⟨.hbm, 3585, rfl⟩
abbrev main_v3256 : Ref sig .tc := ⟨.hbm, 3586, rfl⟩
abbrev main_v3257 : Ref sig .tc := ⟨.hbm, 3587, rfl⟩
abbrev main_v3258 : Ref sig .tc := ⟨.hbm, 3588, rfl⟩
abbrev main_v3259 : Ref sig .tc := ⟨.hbm, 3589, rfl⟩
abbrev main_v3260 : Ref sig .tc := ⟨.hbm, 3590, rfl⟩
abbrev main_cst_324 : Ref sig .tc := ⟨.hbm, 3591, rfl⟩
abbrev main_v3261 : Ref sig .tc := ⟨.hbm, 3592, rfl⟩
abbrev main_c_325 : Ref sig .tc := ⟨.hbm, 3593, rfl⟩
abbrev main_v3262 : Ref sig .tc := ⟨.hbm, 3594, rfl⟩
abbrev main_v3263 : Ref sig .tc := ⟨.hbm, 3595, rfl⟩
abbrev main_v3264 : Ref sig .tc := ⟨.hbm, 3596, rfl⟩
abbrev main_v3265 : Ref sig .tc := ⟨.hbm, 3597, rfl⟩
abbrev main_v3266 : Ref sig .tc := ⟨.hbm, 3598, rfl⟩
abbrev main_v3267 : Ref sig .tc := ⟨.hbm, 3599, rfl⟩
abbrev main_v3268 : Ref sig .tc := ⟨.hbm, 3600, rfl⟩
abbrev main_v3269 : Ref sig .tc := ⟨.hbm, 3601, rfl⟩
abbrev main_v3270 : Ref sig .tc := ⟨.hbm, 3602, rfl⟩
abbrev main_v3271 : Ref sig .tc := ⟨.hbm, 3603, rfl⟩
abbrev main_v3272 : Ref sig .tc := ⟨.hbm, 3604, rfl⟩
abbrev main_v3273 : Ref sig .tc := ⟨.hbm, 3605, rfl⟩
abbrev main_v3274 : Ref sig .tc := ⟨.hbm, 3606, rfl⟩
abbrev main_v3275 : Ref sig .tc := ⟨.hbm, 3607, rfl⟩
abbrev main_v3276 : Ref sig .tc := ⟨.hbm, 3608, rfl⟩
abbrev main_v3277 : Ref sig .tc := ⟨.hbm, 3609, rfl⟩
abbrev main_v3278 : Ref sig .tc := ⟨.hbm, 3610, rfl⟩
abbrev main_v3279 : Ref sig .tc := ⟨.hbm, 3611, rfl⟩
abbrev main_v3280 : Ref sig .tc := ⟨.hbm, 3612, rfl⟩
abbrev main_cst_326 : Ref sig .tc := ⟨.hbm, 3613, rfl⟩
abbrev main_v3281 : Ref sig .tc := ⟨.hbm, 3614, rfl⟩
abbrev main_c_327 : Ref sig .tc := ⟨.hbm, 3615, rfl⟩
abbrev main_v3282 : Ref sig .tc := ⟨.hbm, 3616, rfl⟩
abbrev main_v3283 : Ref sig .tc := ⟨.hbm, 3617, rfl⟩
abbrev main_v3284 : Ref sig .tc := ⟨.hbm, 3618, rfl⟩
abbrev main_v3285 : Ref sig .tc := ⟨.hbm, 3619, rfl⟩
abbrev main_v3286 : Ref sig .tc := ⟨.hbm, 3620, rfl⟩
abbrev main_v3287 : Ref sig .tc := ⟨.hbm, 3621, rfl⟩
abbrev main_v3288 : Ref sig .tc := ⟨.hbm, 3622, rfl⟩
abbrev main_v3289 : Ref sig .tc := ⟨.hbm, 3623, rfl⟩
abbrev main_v3290 : Ref sig .tc := ⟨.hbm, 3624, rfl⟩
abbrev main_v3291 : Ref sig .tc := ⟨.hbm, 3625, rfl⟩
abbrev main_v3292 : Ref sig .tc := ⟨.hbm, 3626, rfl⟩
abbrev main_v3293 : Ref sig .tc := ⟨.hbm, 3627, rfl⟩
abbrev main_v3294 : Ref sig .tc := ⟨.hbm, 3628, rfl⟩
abbrev main_v3295 : Ref sig .tc := ⟨.hbm, 3629, rfl⟩
abbrev main_v3296 : Ref sig .tc := ⟨.hbm, 3630, rfl⟩
abbrev main_v3297 : Ref sig .tc := ⟨.hbm, 3631, rfl⟩
abbrev main_v3298 : Ref sig .tc := ⟨.hbm, 3632, rfl⟩
abbrev main_v3299 : Ref sig .tc := ⟨.hbm, 3633, rfl⟩
abbrev main_v3300 : Ref sig .tc := ⟨.hbm, 3634, rfl⟩
abbrev main_cst_328 : Ref sig .tc := ⟨.hbm, 3635, rfl⟩
abbrev main_v3301 : Ref sig .tc := ⟨.hbm, 3636, rfl⟩
abbrev main_c_329 : Ref sig .tc := ⟨.hbm, 3637, rfl⟩
abbrev main_v3302 : Ref sig .tc := ⟨.hbm, 3638, rfl⟩
abbrev main_v3303 : Ref sig .tc := ⟨.hbm, 3639, rfl⟩
abbrev main_v3304 : Ref sig .tc := ⟨.hbm, 3640, rfl⟩
abbrev main_v3305 : Ref sig .tc := ⟨.hbm, 3641, rfl⟩
abbrev main_v3306 : Ref sig .tc := ⟨.hbm, 3642, rfl⟩
abbrev main_v3307 : Ref sig .tc := ⟨.hbm, 3643, rfl⟩
abbrev main_v3308 : Ref sig .tc := ⟨.hbm, 3644, rfl⟩
abbrev main_v3309 : Ref sig .tc := ⟨.hbm, 3645, rfl⟩
abbrev main_v3310 : Ref sig .tc := ⟨.hbm, 3646, rfl⟩
abbrev main_v3311 : Ref sig .tc := ⟨.hbm, 3647, rfl⟩
abbrev main_v3312 : Ref sig .tc := ⟨.hbm, 3648, rfl⟩
abbrev main_v3313 : Ref sig .tc := ⟨.hbm, 3649, rfl⟩
abbrev main_v3314 : Ref sig .tc := ⟨.hbm, 3650, rfl⟩
abbrev main_v3315 : Ref sig .tc := ⟨.hbm, 3651, rfl⟩
abbrev main_v3316 : Ref sig .tc := ⟨.hbm, 3652, rfl⟩
abbrev main_v3317 : Ref sig .tc := ⟨.hbm, 3653, rfl⟩
abbrev main_v3318 : Ref sig .tc := ⟨.hbm, 3654, rfl⟩
abbrev main_v3319 : Ref sig .tc := ⟨.hbm, 3655, rfl⟩
abbrev main_v3320 : Ref sig .tc := ⟨.hbm, 3656, rfl⟩
abbrev main_cst_330 : Ref sig .tc := ⟨.hbm, 3657, rfl⟩
abbrev main_v3321 : Ref sig .tc := ⟨.hbm, 3658, rfl⟩
abbrev main_c_331 : Ref sig .tc := ⟨.hbm, 3659, rfl⟩
abbrev main_v3322 : Ref sig .tc := ⟨.hbm, 3660, rfl⟩
abbrev main_v3323 : Ref sig .tc := ⟨.hbm, 3661, rfl⟩
abbrev main_v3324 : Ref sig .tc := ⟨.hbm, 3662, rfl⟩
abbrev main_v3325 : Ref sig .tc := ⟨.hbm, 3663, rfl⟩
abbrev main_v3326 : Ref sig .tc := ⟨.hbm, 3664, rfl⟩
abbrev main_v3327 : Ref sig .tc := ⟨.hbm, 3665, rfl⟩
abbrev main_v3328 : Ref sig .tc := ⟨.hbm, 3666, rfl⟩
abbrev main_v3329 : Ref sig .tc := ⟨.hbm, 3667, rfl⟩
abbrev main_v3330 : Ref sig .tc := ⟨.hbm, 3668, rfl⟩
abbrev main_v3331 : Ref sig .tc := ⟨.hbm, 3669, rfl⟩
abbrev main_v3332 : Ref sig .tc := ⟨.hbm, 3670, rfl⟩
abbrev main_v3333 : Ref sig .tc := ⟨.hbm, 3671, rfl⟩
abbrev main_v3334 : Ref sig .tc := ⟨.hbm, 3672, rfl⟩
abbrev main_v3335 : Ref sig .tc := ⟨.hbm, 3673, rfl⟩
abbrev main_v3336 : Ref sig .tc := ⟨.hbm, 3674, rfl⟩
abbrev main_v3337 : Ref sig .tc := ⟨.hbm, 3675, rfl⟩
abbrev main_v3338 : Ref sig .tc := ⟨.hbm, 3676, rfl⟩
abbrev main_v3339 : Ref sig .tc := ⟨.hbm, 3677, rfl⟩
abbrev main_v3340 : Ref sig .tc := ⟨.hbm, 3678, rfl⟩
abbrev main_cst_332 : Ref sig .tc := ⟨.hbm, 3679, rfl⟩
abbrev main_v3341 : Ref sig .tc := ⟨.hbm, 3680, rfl⟩
abbrev main_c_333 : Ref sig .tc := ⟨.hbm, 3681, rfl⟩
abbrev main_v3342 : Ref sig .tc := ⟨.hbm, 3682, rfl⟩
abbrev main_v3343 : Ref sig .tc := ⟨.hbm, 3683, rfl⟩
abbrev main_v3344 : Ref sig .tc := ⟨.hbm, 3684, rfl⟩
abbrev main_v3345 : Ref sig .tc := ⟨.hbm, 3685, rfl⟩
abbrev main_v3346 : Ref sig .tc := ⟨.hbm, 3686, rfl⟩
abbrev main_v3347 : Ref sig .tc := ⟨.hbm, 3687, rfl⟩
abbrev main_v3348 : Ref sig .tc := ⟨.hbm, 3688, rfl⟩
abbrev main_v3349 : Ref sig .tc := ⟨.hbm, 3689, rfl⟩
abbrev main_v3350 : Ref sig .tc := ⟨.hbm, 3690, rfl⟩
abbrev main_v3351 : Ref sig .tc := ⟨.hbm, 3691, rfl⟩
abbrev main_v3352 : Ref sig .tc := ⟨.hbm, 3692, rfl⟩
abbrev main_v3353 : Ref sig .tc := ⟨.hbm, 3693, rfl⟩
abbrev main_v3354 : Ref sig .tc := ⟨.hbm, 3694, rfl⟩
abbrev main_v3355 : Ref sig .tc := ⟨.hbm, 3695, rfl⟩
abbrev main_v3356 : Ref sig .tc := ⟨.hbm, 3696, rfl⟩
abbrev main_v3357 : Ref sig .tc := ⟨.hbm, 3697, rfl⟩
abbrev main_v3358 : Ref sig .tc := ⟨.hbm, 3698, rfl⟩
abbrev main_v3359 : Ref sig .tc := ⟨.hbm, 3699, rfl⟩
abbrev main_v3360 : Ref sig .tc := ⟨.hbm, 3700, rfl⟩
abbrev main_cst_334 : Ref sig .tc := ⟨.hbm, 3701, rfl⟩
abbrev main_v3361 : Ref sig .tc := ⟨.hbm, 3702, rfl⟩
abbrev main_c_335 : Ref sig .tc := ⟨.hbm, 3703, rfl⟩
abbrev main_v3362 : Ref sig .tc := ⟨.hbm, 3704, rfl⟩
abbrev main_v3363 : Ref sig .tc := ⟨.hbm, 3705, rfl⟩
abbrev main_v3364 : Ref sig .tc := ⟨.hbm, 3706, rfl⟩
abbrev main_v3365 : Ref sig .tc := ⟨.hbm, 3707, rfl⟩
abbrev main_v3366 : Ref sig .tc := ⟨.hbm, 3708, rfl⟩
abbrev main_v3367 : Ref sig .tc := ⟨.hbm, 3709, rfl⟩
abbrev main_v3368 : Ref sig .tc := ⟨.hbm, 3710, rfl⟩
abbrev main_v3369 : Ref sig .tc := ⟨.hbm, 3711, rfl⟩
abbrev main_v3370 : Ref sig .tc := ⟨.hbm, 3712, rfl⟩
abbrev main_v3371 : Ref sig .tc := ⟨.hbm, 3713, rfl⟩
abbrev main_v3372 : Ref sig .tc := ⟨.hbm, 3714, rfl⟩
abbrev main_v3373 : Ref sig .tc := ⟨.hbm, 3715, rfl⟩
abbrev main_v3374 : Ref sig .tc := ⟨.hbm, 3716, rfl⟩
abbrev main_v3375 : Ref sig .tc := ⟨.hbm, 3717, rfl⟩
abbrev main_v3376 : Ref sig .tc := ⟨.hbm, 3718, rfl⟩
abbrev main_v3377 : Ref sig .tc := ⟨.hbm, 3719, rfl⟩
abbrev main_v3378 : Ref sig .tc := ⟨.hbm, 3720, rfl⟩
abbrev main_v3379 : Ref sig .tc := ⟨.hbm, 3721, rfl⟩
abbrev main_v3380 : Ref sig .tc := ⟨.hbm, 3722, rfl⟩
abbrev main_cst_336 : Ref sig .tc := ⟨.hbm, 3723, rfl⟩
abbrev main_v3381 : Ref sig .tc := ⟨.hbm, 3724, rfl⟩
abbrev main_c_337 : Ref sig .tc := ⟨.hbm, 3725, rfl⟩
abbrev main_v3382 : Ref sig .tc := ⟨.hbm, 3726, rfl⟩
abbrev main_v3383 : Ref sig .tc := ⟨.hbm, 3727, rfl⟩
abbrev main_v3384 : Ref sig .tc := ⟨.hbm, 3728, rfl⟩
abbrev main_v3385 : Ref sig .tc := ⟨.hbm, 3729, rfl⟩
abbrev main_v3386 : Ref sig .tc := ⟨.hbm, 3730, rfl⟩
abbrev main_v3387 : Ref sig .tc := ⟨.hbm, 3731, rfl⟩
abbrev main_v3388 : Ref sig .tc := ⟨.hbm, 3732, rfl⟩
abbrev main_v3389 : Ref sig .tc := ⟨.hbm, 3733, rfl⟩
abbrev main_v3390 : Ref sig .tc := ⟨.hbm, 3734, rfl⟩
abbrev main_v3391 : Ref sig .tc := ⟨.hbm, 3735, rfl⟩
abbrev main_v3392 : Ref sig .tc := ⟨.hbm, 3736, rfl⟩
abbrev main_v3393 : Ref sig .tc := ⟨.hbm, 3737, rfl⟩
abbrev main_v3394 : Ref sig .tc := ⟨.hbm, 3738, rfl⟩
abbrev main_v3395 : Ref sig .tc := ⟨.hbm, 3739, rfl⟩
abbrev main_v3396 : Ref sig .tc := ⟨.hbm, 3740, rfl⟩
abbrev main_v3397 : Ref sig .tc := ⟨.hbm, 3741, rfl⟩
abbrev main_v3398 : Ref sig .tc := ⟨.hbm, 3742, rfl⟩
abbrev main_v3399 : Ref sig .tc := ⟨.hbm, 3743, rfl⟩
abbrev main_v3400 : Ref sig .tc := ⟨.hbm, 3744, rfl⟩
abbrev main_cst_338 : Ref sig .tc := ⟨.hbm, 3745, rfl⟩
abbrev main_v3401 : Ref sig .tc := ⟨.hbm, 3746, rfl⟩
abbrev main_c_339 : Ref sig .tc := ⟨.hbm, 3747, rfl⟩
abbrev main_v3402 : Ref sig .tc := ⟨.hbm, 3748, rfl⟩
abbrev main_v3403 : Ref sig .tc := ⟨.hbm, 3749, rfl⟩
abbrev main_v3404 : Ref sig .tc := ⟨.hbm, 3750, rfl⟩
abbrev main_v3405 : Ref sig .tc := ⟨.hbm, 3751, rfl⟩
abbrev main_v3406 : Ref sig .tc := ⟨.hbm, 3752, rfl⟩
abbrev main_v3407 : Ref sig .tc := ⟨.hbm, 3753, rfl⟩
abbrev main_v3408 : Ref sig .tc := ⟨.hbm, 3754, rfl⟩
abbrev main_v3409 : Ref sig .tc := ⟨.hbm, 3755, rfl⟩
abbrev main_v3410 : Ref sig .tc := ⟨.hbm, 3756, rfl⟩
abbrev main_v3411 : Ref sig .tc := ⟨.hbm, 3757, rfl⟩
abbrev main_v3412 : Ref sig .tc := ⟨.hbm, 3758, rfl⟩
abbrev main_v3413 : Ref sig .tc := ⟨.hbm, 3759, rfl⟩
abbrev main_v3414 : Ref sig .tc := ⟨.hbm, 3760, rfl⟩
abbrev main_v3415 : Ref sig .tc := ⟨.hbm, 3761, rfl⟩
abbrev main_v3416 : Ref sig .tc := ⟨.hbm, 3762, rfl⟩
abbrev main_v3417 : Ref sig .tc := ⟨.hbm, 3763, rfl⟩
abbrev main_v3418 : Ref sig .tc := ⟨.hbm, 3764, rfl⟩
abbrev main_v3419 : Ref sig .tc := ⟨.hbm, 3765, rfl⟩
abbrev main_v3420 : Ref sig .tc := ⟨.hbm, 3766, rfl⟩
abbrev main_cst_340 : Ref sig .tc := ⟨.hbm, 3767, rfl⟩
abbrev main_v3421 : Ref sig .tc := ⟨.hbm, 3768, rfl⟩
abbrev main_c_341 : Ref sig .tc := ⟨.hbm, 3769, rfl⟩
abbrev main_v3422 : Ref sig .tc := ⟨.hbm, 3770, rfl⟩
abbrev main_v3423 : Ref sig .tc := ⟨.hbm, 3771, rfl⟩
abbrev main_v3424 : Ref sig .tc := ⟨.hbm, 3772, rfl⟩
abbrev main_v3425 : Ref sig .tc := ⟨.hbm, 3773, rfl⟩
abbrev main_v3426 : Ref sig .tc := ⟨.hbm, 3774, rfl⟩
abbrev main_v3427 : Ref sig .tc := ⟨.hbm, 3775, rfl⟩
abbrev main_v3428 : Ref sig .tc := ⟨.hbm, 3776, rfl⟩
abbrev main_v3429 : Ref sig .tc := ⟨.hbm, 3777, rfl⟩
abbrev main_v3430 : Ref sig .tc := ⟨.hbm, 3778, rfl⟩
abbrev main_v3431 : Ref sig .tc := ⟨.hbm, 3779, rfl⟩
abbrev main_v3432 : Ref sig .tc := ⟨.hbm, 3780, rfl⟩
abbrev main_v3433 : Ref sig .tc := ⟨.hbm, 3781, rfl⟩
abbrev main_v3434 : Ref sig .tc := ⟨.hbm, 3782, rfl⟩
abbrev main_v3435 : Ref sig .tc := ⟨.hbm, 3783, rfl⟩
abbrev main_v3436 : Ref sig .tc := ⟨.hbm, 3784, rfl⟩
abbrev main_v3437 : Ref sig .tc := ⟨.hbm, 3785, rfl⟩
abbrev main_v3438 : Ref sig .tc := ⟨.hbm, 3786, rfl⟩
abbrev main_v3439 : Ref sig .tc := ⟨.hbm, 3787, rfl⟩
abbrev main_v3440 : Ref sig .tc := ⟨.hbm, 3788, rfl⟩
abbrev main_cst_342 : Ref sig .tc := ⟨.hbm, 3789, rfl⟩
abbrev main_v3441 : Ref sig .tc := ⟨.hbm, 3790, rfl⟩
abbrev main_c_343 : Ref sig .tc := ⟨.hbm, 3791, rfl⟩
abbrev main_v3442 : Ref sig .tc := ⟨.hbm, 3792, rfl⟩
abbrev main_v3443 : Ref sig .tc := ⟨.hbm, 3793, rfl⟩
abbrev main_v3444 : Ref sig .tc := ⟨.hbm, 3794, rfl⟩
abbrev main_v3445 : Ref sig .tc := ⟨.hbm, 3795, rfl⟩
abbrev main_v3446 : Ref sig .tc := ⟨.hbm, 3796, rfl⟩
abbrev main_v3447 : Ref sig .tc := ⟨.hbm, 3797, rfl⟩
abbrev main_v3448 : Ref sig .tc := ⟨.hbm, 3798, rfl⟩
abbrev main_v3449 : Ref sig .tc := ⟨.hbm, 3799, rfl⟩
abbrev main_v3450 : Ref sig .tc := ⟨.hbm, 3800, rfl⟩
abbrev main_v3451 : Ref sig .tc := ⟨.hbm, 3801, rfl⟩
abbrev main_v3452 : Ref sig .tc := ⟨.hbm, 3802, rfl⟩
abbrev main_v3453 : Ref sig .tc := ⟨.hbm, 3803, rfl⟩
abbrev main_v3454 : Ref sig .tc := ⟨.hbm, 3804, rfl⟩
abbrev main_v3455 : Ref sig .tc := ⟨.hbm, 3805, rfl⟩
abbrev main_v3456 : Ref sig .tc := ⟨.hbm, 3806, rfl⟩
abbrev main_v3457 : Ref sig .tc := ⟨.hbm, 3807, rfl⟩
abbrev main_v3458 : Ref sig .tc := ⟨.hbm, 3808, rfl⟩
abbrev main_v3459 : Ref sig .tc := ⟨.hbm, 3809, rfl⟩
abbrev main_v3460 : Ref sig .tc := ⟨.hbm, 3810, rfl⟩
abbrev main_cst_344 : Ref sig .tc := ⟨.hbm, 3811, rfl⟩
abbrev main_v3461 : Ref sig .tc := ⟨.hbm, 3812, rfl⟩
abbrev main_c_345 : Ref sig .tc := ⟨.hbm, 3813, rfl⟩
abbrev main_v3462 : Ref sig .tc := ⟨.hbm, 3814, rfl⟩
abbrev main_v3463 : Ref sig .tc := ⟨.hbm, 3815, rfl⟩
abbrev main_v3464 : Ref sig .tc := ⟨.hbm, 3816, rfl⟩
abbrev main_v3465 : Ref sig .tc := ⟨.hbm, 3817, rfl⟩
abbrev main_v3466 : Ref sig .tc := ⟨.hbm, 3818, rfl⟩
abbrev main_v3467 : Ref sig .tc := ⟨.hbm, 3819, rfl⟩
abbrev main_v3468 : Ref sig .tc := ⟨.hbm, 3820, rfl⟩
abbrev main_v3469 : Ref sig .tc := ⟨.hbm, 3821, rfl⟩
abbrev main_v3470 : Ref sig .tc := ⟨.hbm, 3822, rfl⟩
abbrev main_v3471 : Ref sig .tc := ⟨.hbm, 3823, rfl⟩
abbrev main_v3472 : Ref sig .tc := ⟨.hbm, 3824, rfl⟩
abbrev main_v3473 : Ref sig .tc := ⟨.hbm, 3825, rfl⟩
abbrev main_v3474 : Ref sig .tc := ⟨.hbm, 3826, rfl⟩
abbrev main_v3475 : Ref sig .tc := ⟨.hbm, 3827, rfl⟩
abbrev main_v3476 : Ref sig .tc := ⟨.hbm, 3828, rfl⟩
abbrev main_v3477 : Ref sig .tc := ⟨.hbm, 3829, rfl⟩
abbrev main_v3478 : Ref sig .tc := ⟨.hbm, 3830, rfl⟩
abbrev main_v3479 : Ref sig .tc := ⟨.hbm, 3831, rfl⟩
abbrev main_v3480 : Ref sig .tc := ⟨.hbm, 3832, rfl⟩
abbrev main_cst_346 : Ref sig .tc := ⟨.hbm, 3833, rfl⟩
abbrev main_v3481 : Ref sig .tc := ⟨.hbm, 3834, rfl⟩
abbrev main_c_347 : Ref sig .tc := ⟨.hbm, 3835, rfl⟩
abbrev main_v3482 : Ref sig .tc := ⟨.hbm, 3836, rfl⟩
abbrev main_v3483 : Ref sig .tc := ⟨.hbm, 3837, rfl⟩
abbrev main_v3484 : Ref sig .tc := ⟨.hbm, 3838, rfl⟩
abbrev main_v3485 : Ref sig .tc := ⟨.hbm, 3839, rfl⟩
abbrev main_v3486 : Ref sig .tc := ⟨.hbm, 3840, rfl⟩
abbrev main_v3487 : Ref sig .tc := ⟨.hbm, 3841, rfl⟩
abbrev main_v3488 : Ref sig .tc := ⟨.hbm, 3842, rfl⟩
abbrev main_v3489 : Ref sig .tc := ⟨.hbm, 3843, rfl⟩
abbrev main_v3490 : Ref sig .tc := ⟨.hbm, 3844, rfl⟩
abbrev main_v3491 : Ref sig .tc := ⟨.hbm, 3845, rfl⟩
abbrev main_v3492 : Ref sig .tc := ⟨.hbm, 3846, rfl⟩
abbrev main_v3493 : Ref sig .tc := ⟨.hbm, 3847, rfl⟩
abbrev main_v3494 : Ref sig .tc := ⟨.hbm, 3848, rfl⟩
abbrev main_v3495 : Ref sig .tc := ⟨.hbm, 3849, rfl⟩
abbrev main_v3496 : Ref sig .tc := ⟨.hbm, 3850, rfl⟩
abbrev main_v3497 : Ref sig .tc := ⟨.hbm, 3851, rfl⟩
abbrev main_v3498 : Ref sig .tc := ⟨.hbm, 3852, rfl⟩
abbrev main_v3499 : Ref sig .tc := ⟨.hbm, 3853, rfl⟩
abbrev main_v3500 : Ref sig .tc := ⟨.hbm, 3854, rfl⟩
abbrev main_cst_348 : Ref sig .tc := ⟨.hbm, 3855, rfl⟩
abbrev main_v3501 : Ref sig .tc := ⟨.hbm, 3856, rfl⟩
abbrev main_c_349 : Ref sig .tc := ⟨.hbm, 3857, rfl⟩
abbrev main_v3502 : Ref sig .tc := ⟨.hbm, 3858, rfl⟩
abbrev main_v3503 : Ref sig .tc := ⟨.hbm, 3859, rfl⟩
abbrev main_v3504 : Ref sig .tc := ⟨.hbm, 3860, rfl⟩
abbrev main_v3505 : Ref sig .tc := ⟨.hbm, 3861, rfl⟩
abbrev main_v3506 : Ref sig .tc := ⟨.hbm, 3862, rfl⟩
abbrev main_v3507 : Ref sig .tc := ⟨.hbm, 3863, rfl⟩
abbrev main_v3508 : Ref sig .tc := ⟨.hbm, 3864, rfl⟩
abbrev main_v3509 : Ref sig .tc := ⟨.hbm, 3865, rfl⟩
abbrev main_v3510 : Ref sig .tc := ⟨.hbm, 3866, rfl⟩
abbrev main_v3511 : Ref sig .tc := ⟨.hbm, 3867, rfl⟩
abbrev main_v3512 : Ref sig .tc := ⟨.hbm, 3868, rfl⟩
abbrev main_v3513 : Ref sig .tc := ⟨.hbm, 3869, rfl⟩
abbrev main_v3514 : Ref sig .tc := ⟨.hbm, 3870, rfl⟩
abbrev main_v3515 : Ref sig .tc := ⟨.hbm, 3871, rfl⟩
abbrev main_v3516 : Ref sig .tc := ⟨.hbm, 3872, rfl⟩
abbrev main_v3517 : Ref sig .tc := ⟨.hbm, 3873, rfl⟩
abbrev main_v3518 : Ref sig .tc := ⟨.hbm, 3874, rfl⟩
abbrev main_v3519 : Ref sig .tc := ⟨.hbm, 3875, rfl⟩
abbrev main_v3520 : Ref sig .tc := ⟨.hbm, 3876, rfl⟩
abbrev main_cst_350 : Ref sig .tc := ⟨.hbm, 3877, rfl⟩
abbrev main_v3521 : Ref sig .tc := ⟨.hbm, 3878, rfl⟩
abbrev main_c_351 : Ref sig .tc := ⟨.hbm, 3879, rfl⟩
abbrev main_v3522 : Ref sig .tc := ⟨.hbm, 3880, rfl⟩
abbrev main_v3523 : Ref sig .tc := ⟨.hbm, 3881, rfl⟩
abbrev main_v3524 : Ref sig .tc := ⟨.hbm, 3882, rfl⟩
abbrev main_v3525 : Ref sig .tc := ⟨.hbm, 3883, rfl⟩
abbrev main_v3526 : Ref sig .tc := ⟨.hbm, 3884, rfl⟩
abbrev main_v3527 : Ref sig .tc := ⟨.hbm, 3885, rfl⟩
abbrev main_v3528 : Ref sig .tc := ⟨.hbm, 3886, rfl⟩
abbrev main_v3529 : Ref sig .tc := ⟨.hbm, 3887, rfl⟩
abbrev main_v3530 : Ref sig .tc := ⟨.hbm, 3888, rfl⟩
abbrev main_v3531 : Ref sig .tc := ⟨.hbm, 3889, rfl⟩
abbrev main_v3532 : Ref sig .tc := ⟨.hbm, 3890, rfl⟩
abbrev main_v3533 : Ref sig .tc := ⟨.hbm, 3891, rfl⟩
abbrev main_v3534 : Ref sig .tc := ⟨.hbm, 3892, rfl⟩
abbrev main_v3535 : Ref sig .tc := ⟨.hbm, 3893, rfl⟩
abbrev main_v3536 : Ref sig .tc := ⟨.hbm, 3894, rfl⟩
abbrev main_v3537 : Ref sig .tc := ⟨.hbm, 3895, rfl⟩
abbrev main_v3538 : Ref sig .tc := ⟨.hbm, 3896, rfl⟩
abbrev main_v3539 : Ref sig .tc := ⟨.hbm, 3897, rfl⟩
abbrev main_v3540 : Ref sig .tc := ⟨.hbm, 3898, rfl⟩
abbrev main_cst_352 : Ref sig .tc := ⟨.hbm, 3899, rfl⟩
abbrev main_v3541 : Ref sig .tc := ⟨.hbm, 3900, rfl⟩
abbrev main_c_353 : Ref sig .tc := ⟨.hbm, 3901, rfl⟩
abbrev main_v3542 : Ref sig .tc := ⟨.hbm, 3902, rfl⟩
abbrev main_v3543 : Ref sig .tc := ⟨.hbm, 3903, rfl⟩
abbrev main_v3544 : Ref sig .tc := ⟨.hbm, 3904, rfl⟩
abbrev main_v3545 : Ref sig .tc := ⟨.hbm, 3905, rfl⟩
abbrev main_v3546 : Ref sig .tc := ⟨.hbm, 3906, rfl⟩
abbrev main_v3547 : Ref sig .tc := ⟨.hbm, 3907, rfl⟩
abbrev main_v3548 : Ref sig .tc := ⟨.hbm, 3908, rfl⟩
abbrev main_v3549 : Ref sig .tc := ⟨.hbm, 3909, rfl⟩
abbrev main_v3550 : Ref sig .tc := ⟨.hbm, 3910, rfl⟩
abbrev main_v3551 : Ref sig .tc := ⟨.hbm, 3911, rfl⟩
abbrev main_v3552 : Ref sig .tc := ⟨.hbm, 3912, rfl⟩
abbrev main_v3553 : Ref sig .tc := ⟨.hbm, 3913, rfl⟩
abbrev main_v3554 : Ref sig .tc := ⟨.hbm, 3914, rfl⟩
abbrev main_v3555 : Ref sig .tc := ⟨.hbm, 3915, rfl⟩
abbrev main_v3556 : Ref sig .tc := ⟨.hbm, 3916, rfl⟩
abbrev main_v3557 : Ref sig .tc := ⟨.hbm, 3917, rfl⟩
abbrev main_v3558 : Ref sig .tc := ⟨.hbm, 3918, rfl⟩
abbrev main_v3559 : Ref sig .tc := ⟨.hbm, 3919, rfl⟩
abbrev main_v3560 : Ref sig .tc := ⟨.hbm, 3920, rfl⟩
abbrev main_cst_354 : Ref sig .tc := ⟨.hbm, 3921, rfl⟩
abbrev main_v3561 : Ref sig .tc := ⟨.hbm, 3922, rfl⟩
abbrev main_c_355 : Ref sig .tc := ⟨.hbm, 3923, rfl⟩
abbrev main_v3562 : Ref sig .tc := ⟨.hbm, 3924, rfl⟩
abbrev main_v3563 : Ref sig .tc := ⟨.hbm, 3925, rfl⟩
abbrev main_v3564 : Ref sig .tc := ⟨.hbm, 3926, rfl⟩
abbrev main_v3565 : Ref sig .tc := ⟨.hbm, 3927, rfl⟩
abbrev main_v3566 : Ref sig .tc := ⟨.hbm, 3928, rfl⟩
abbrev main_v3567 : Ref sig .tc := ⟨.hbm, 3929, rfl⟩
abbrev main_v3568 : Ref sig .tc := ⟨.hbm, 3930, rfl⟩
abbrev main_v3569 : Ref sig .tc := ⟨.hbm, 3931, rfl⟩
abbrev main_v3570 : Ref sig .tc := ⟨.hbm, 3932, rfl⟩
abbrev main_v3571 : Ref sig .tc := ⟨.hbm, 3933, rfl⟩
abbrev main_v3572 : Ref sig .tc := ⟨.hbm, 3934, rfl⟩
abbrev main_v3573 : Ref sig .tc := ⟨.hbm, 3935, rfl⟩
abbrev main_v3574 : Ref sig .tc := ⟨.hbm, 3936, rfl⟩
abbrev main_v3575 : Ref sig .tc := ⟨.hbm, 3937, rfl⟩
abbrev main_v3576 : Ref sig .tc := ⟨.hbm, 3938, rfl⟩
abbrev main_v3577 : Ref sig .tc := ⟨.hbm, 3939, rfl⟩
abbrev main_v3578 : Ref sig .tc := ⟨.hbm, 3940, rfl⟩
abbrev main_v3579 : Ref sig .tc := ⟨.hbm, 3941, rfl⟩
abbrev main_v3580 : Ref sig .tc := ⟨.hbm, 3942, rfl⟩
abbrev main_cst_356 : Ref sig .tc := ⟨.hbm, 3943, rfl⟩
abbrev main_v3581 : Ref sig .tc := ⟨.hbm, 3944, rfl⟩
abbrev main_c_357 : Ref sig .tc := ⟨.hbm, 3945, rfl⟩
abbrev main_v3582 : Ref sig .tc := ⟨.hbm, 3946, rfl⟩
abbrev main_v3583 : Ref sig .tc := ⟨.hbm, 3947, rfl⟩
abbrev main_v3584 : Ref sig .tc := ⟨.hbm, 3948, rfl⟩
abbrev main_v3585 : Ref sig .tc := ⟨.hbm, 3949, rfl⟩
abbrev main_v3586 : Ref sig .tc := ⟨.hbm, 3950, rfl⟩
abbrev main_v3587 : Ref sig .tc := ⟨.hbm, 3951, rfl⟩
abbrev main_v3588 : Ref sig .tc := ⟨.hbm, 3952, rfl⟩
abbrev main_v3589 : Ref sig .tc := ⟨.hbm, 3953, rfl⟩
abbrev main_v3590 : Ref sig .tc := ⟨.hbm, 3954, rfl⟩
abbrev main_v3591 : Ref sig .tc := ⟨.hbm, 3955, rfl⟩
abbrev main_v3592 : Ref sig .tc := ⟨.hbm, 3956, rfl⟩
abbrev main_v3593 : Ref sig .tc := ⟨.hbm, 3957, rfl⟩
abbrev main_v3594 : Ref sig .tc := ⟨.hbm, 3958, rfl⟩
abbrev main_v3595 : Ref sig .tc := ⟨.hbm, 3959, rfl⟩
abbrev main_v3596 : Ref sig .tc := ⟨.hbm, 3960, rfl⟩
abbrev main_v3597 : Ref sig .tc := ⟨.hbm, 3961, rfl⟩
abbrev main_v3598 : Ref sig .tc := ⟨.hbm, 3962, rfl⟩
abbrev main_v3599 : Ref sig .tc := ⟨.hbm, 3963, rfl⟩
abbrev main_v3600 : Ref sig .tc := ⟨.hbm, 3964, rfl⟩
abbrev main_cst_358 : Ref sig .tc := ⟨.hbm, 3965, rfl⟩
abbrev main_v3601 : Ref sig .tc := ⟨.hbm, 3966, rfl⟩
abbrev main_c_359 : Ref sig .tc := ⟨.hbm, 3967, rfl⟩
abbrev main_v3602 : Ref sig .tc := ⟨.hbm, 3968, rfl⟩
abbrev main_v3603 : Ref sig .tc := ⟨.hbm, 3969, rfl⟩
abbrev main_v3604 : Ref sig .tc := ⟨.hbm, 3970, rfl⟩
abbrev main_v3605 : Ref sig .tc := ⟨.hbm, 3971, rfl⟩
abbrev main_v3606 : Ref sig .tc := ⟨.hbm, 3972, rfl⟩
abbrev main_v3607 : Ref sig .tc := ⟨.hbm, 3973, rfl⟩
abbrev main_v3608 : Ref sig .tc := ⟨.hbm, 3974, rfl⟩
abbrev main_v3609 : Ref sig .tc := ⟨.hbm, 3975, rfl⟩
abbrev main_v3610 : Ref sig .tc := ⟨.hbm, 3976, rfl⟩
abbrev main_v3611 : Ref sig .tc := ⟨.hbm, 3977, rfl⟩
abbrev main_v3612 : Ref sig .tc := ⟨.hbm, 3978, rfl⟩
abbrev main_v3613 : Ref sig .tc := ⟨.hbm, 3979, rfl⟩
abbrev main_v3614 : Ref sig .tc := ⟨.hbm, 3980, rfl⟩
abbrev main_v3615 : Ref sig .tc := ⟨.hbm, 3981, rfl⟩
abbrev main_v3616 : Ref sig .tc := ⟨.hbm, 3982, rfl⟩
abbrev main_v3617 : Ref sig .tc := ⟨.hbm, 3983, rfl⟩
abbrev main_v3618 : Ref sig .tc := ⟨.hbm, 3984, rfl⟩
abbrev main_v3619 : Ref sig .tc := ⟨.hbm, 3985, rfl⟩
abbrev main_v3620 : Ref sig .tc := ⟨.hbm, 3986, rfl⟩
abbrev main_cst_360 : Ref sig .tc := ⟨.hbm, 3987, rfl⟩
abbrev main_v3621 : Ref sig .tc := ⟨.hbm, 3988, rfl⟩
abbrev main_c_361 : Ref sig .tc := ⟨.hbm, 3989, rfl⟩
abbrev main_v3622 : Ref sig .tc := ⟨.hbm, 3990, rfl⟩
abbrev main_v3623 : Ref sig .tc := ⟨.hbm, 3991, rfl⟩
abbrev main_v3624 : Ref sig .tc := ⟨.hbm, 3992, rfl⟩
abbrev main_v3625 : Ref sig .tc := ⟨.hbm, 3993, rfl⟩
abbrev main_v3626 : Ref sig .tc := ⟨.hbm, 3994, rfl⟩
abbrev main_v3627 : Ref sig .tc := ⟨.hbm, 3995, rfl⟩
abbrev main_v3628 : Ref sig .tc := ⟨.hbm, 3996, rfl⟩
abbrev main_v3629 : Ref sig .tc := ⟨.hbm, 3997, rfl⟩
abbrev main_v3630 : Ref sig .tc := ⟨.hbm, 3998, rfl⟩
abbrev main_v3631 : Ref sig .tc := ⟨.hbm, 3999, rfl⟩
abbrev main_v3632 : Ref sig .tc := ⟨.hbm, 4000, rfl⟩
abbrev main_v3633 : Ref sig .tc := ⟨.hbm, 4001, rfl⟩
abbrev main_v3634 : Ref sig .tc := ⟨.hbm, 4002, rfl⟩
abbrev main_v3635 : Ref sig .tc := ⟨.hbm, 4003, rfl⟩
abbrev main_v3636 : Ref sig .tc := ⟨.hbm, 4004, rfl⟩
abbrev main_v3637 : Ref sig .tc := ⟨.hbm, 4005, rfl⟩
abbrev main_v3638 : Ref sig .tc := ⟨.hbm, 4006, rfl⟩
abbrev main_v3639 : Ref sig .tc := ⟨.hbm, 4007, rfl⟩
abbrev main_v3640 : Ref sig .tc := ⟨.hbm, 4008, rfl⟩
abbrev main_cst_362 : Ref sig .tc := ⟨.hbm, 4009, rfl⟩
abbrev main_v3641 : Ref sig .tc := ⟨.hbm, 4010, rfl⟩
abbrev main_c_363 : Ref sig .tc := ⟨.hbm, 4011, rfl⟩
abbrev main_v3642 : Ref sig .tc := ⟨.hbm, 4012, rfl⟩
abbrev main_v3643 : Ref sig .tc := ⟨.hbm, 4013, rfl⟩
abbrev main_v3644 : Ref sig .tc := ⟨.hbm, 4014, rfl⟩
abbrev main_v3645 : Ref sig .tc := ⟨.hbm, 4015, rfl⟩
abbrev main_v3646 : Ref sig .tc := ⟨.hbm, 4016, rfl⟩
abbrev main_v3647 : Ref sig .tc := ⟨.hbm, 4017, rfl⟩
abbrev main_v3648 : Ref sig .tc := ⟨.hbm, 4018, rfl⟩
abbrev main_v3649 : Ref sig .tc := ⟨.hbm, 4019, rfl⟩
abbrev main_v3650 : Ref sig .tc := ⟨.hbm, 4020, rfl⟩
abbrev main_v3651 : Ref sig .tc := ⟨.hbm, 4021, rfl⟩
abbrev main_v3652 : Ref sig .tc := ⟨.hbm, 4022, rfl⟩
abbrev main_v3653 : Ref sig .tc := ⟨.hbm, 4023, rfl⟩
abbrev main_v3654 : Ref sig .tc := ⟨.hbm, 4024, rfl⟩
abbrev main_v3655 : Ref sig .tc := ⟨.hbm, 4025, rfl⟩
abbrev main_v3656 : Ref sig .tc := ⟨.hbm, 4026, rfl⟩
abbrev main_v3657 : Ref sig .tc := ⟨.hbm, 4027, rfl⟩
abbrev main_v3658 : Ref sig .tc := ⟨.hbm, 4028, rfl⟩
abbrev main_v3659 : Ref sig .tc := ⟨.hbm, 4029, rfl⟩
abbrev main_v3660 : Ref sig .tc := ⟨.hbm, 4030, rfl⟩
abbrev main_cst_364 : Ref sig .tc := ⟨.hbm, 4031, rfl⟩
abbrev main_v3661 : Ref sig .tc := ⟨.hbm, 4032, rfl⟩
abbrev main_c_365 : Ref sig .tc := ⟨.hbm, 4033, rfl⟩
abbrev main_v3662 : Ref sig .tc := ⟨.hbm, 4034, rfl⟩
abbrev main_v3663 : Ref sig .tc := ⟨.hbm, 4035, rfl⟩
abbrev main_v3664 : Ref sig .tc := ⟨.hbm, 4036, rfl⟩
abbrev main_v3665 : Ref sig .tc := ⟨.hbm, 4037, rfl⟩
abbrev main_v3666 : Ref sig .tc := ⟨.hbm, 4038, rfl⟩
abbrev main_v3667 : Ref sig .tc := ⟨.hbm, 4039, rfl⟩
abbrev main_v3668 : Ref sig .tc := ⟨.hbm, 4040, rfl⟩
abbrev main_v3669 : Ref sig .tc := ⟨.hbm, 4041, rfl⟩
abbrev main_v3670 : Ref sig .tc := ⟨.hbm, 4042, rfl⟩
abbrev main_v3671 : Ref sig .tc := ⟨.hbm, 4043, rfl⟩
abbrev main_v3672 : Ref sig .tc := ⟨.hbm, 4044, rfl⟩
abbrev main_v3673 : Ref sig .tc := ⟨.hbm, 4045, rfl⟩
abbrev main_v3674 : Ref sig .tc := ⟨.hbm, 4046, rfl⟩
abbrev main_v3675 : Ref sig .tc := ⟨.hbm, 4047, rfl⟩
abbrev main_v3676 : Ref sig .tc := ⟨.hbm, 4048, rfl⟩
abbrev main_v3677 : Ref sig .tc := ⟨.hbm, 4049, rfl⟩
abbrev main_v3678 : Ref sig .tc := ⟨.hbm, 4050, rfl⟩
abbrev main_v3679 : Ref sig .tc := ⟨.hbm, 4051, rfl⟩
abbrev main_v3680 : Ref sig .tc := ⟨.hbm, 4052, rfl⟩
abbrev main_cst_366 : Ref sig .tc := ⟨.hbm, 4053, rfl⟩
abbrev main_v3681 : Ref sig .tc := ⟨.hbm, 4054, rfl⟩
abbrev main_c_367 : Ref sig .tc := ⟨.hbm, 4055, rfl⟩
abbrev main_v3682 : Ref sig .tc := ⟨.hbm, 4056, rfl⟩
abbrev main_v3683 : Ref sig .tc := ⟨.hbm, 4057, rfl⟩
abbrev main_v3684 : Ref sig .tc := ⟨.hbm, 4058, rfl⟩
abbrev main_v3685 : Ref sig .tc := ⟨.hbm, 4059, rfl⟩
abbrev main_v3686 : Ref sig .tc := ⟨.hbm, 4060, rfl⟩
abbrev main_v3687 : Ref sig .tc := ⟨.hbm, 4061, rfl⟩
abbrev main_v3688 : Ref sig .tc := ⟨.hbm, 4062, rfl⟩
abbrev main_v3689 : Ref sig .tc := ⟨.hbm, 4063, rfl⟩
abbrev main_v3690 : Ref sig .tc := ⟨.hbm, 4064, rfl⟩
abbrev main_v3691 : Ref sig .tc := ⟨.hbm, 4065, rfl⟩
abbrev main_v3692 : Ref sig .tc := ⟨.hbm, 4066, rfl⟩
abbrev main_v3693 : Ref sig .tc := ⟨.hbm, 4067, rfl⟩
abbrev main_v3694 : Ref sig .tc := ⟨.hbm, 4068, rfl⟩
abbrev main_v3695 : Ref sig .tc := ⟨.hbm, 4069, rfl⟩
abbrev main_v3696 : Ref sig .tc := ⟨.hbm, 4070, rfl⟩
abbrev main_v3697 : Ref sig .tc := ⟨.hbm, 4071, rfl⟩
abbrev main_v3698 : Ref sig .tc := ⟨.hbm, 4072, rfl⟩
abbrev main_v3699 : Ref sig .tc := ⟨.hbm, 4073, rfl⟩
abbrev main_v3700 : Ref sig .tc := ⟨.hbm, 4074, rfl⟩
abbrev main_cst_368 : Ref sig .tc := ⟨.hbm, 4075, rfl⟩
abbrev main_v3701 : Ref sig .tc := ⟨.hbm, 4076, rfl⟩
abbrev main_c_369 : Ref sig .tc := ⟨.hbm, 4077, rfl⟩
abbrev main_v3702 : Ref sig .tc := ⟨.hbm, 4078, rfl⟩
abbrev main_v3703 : Ref sig .tc := ⟨.hbm, 4079, rfl⟩
abbrev main_v3704 : Ref sig .tc := ⟨.hbm, 4080, rfl⟩
abbrev main_v3705 : Ref sig .tc := ⟨.hbm, 4081, rfl⟩
abbrev main_v3706 : Ref sig .tc := ⟨.hbm, 4082, rfl⟩
abbrev main_v3707 : Ref sig .tc := ⟨.hbm, 4083, rfl⟩
abbrev main_v3708 : Ref sig .tc := ⟨.hbm, 4084, rfl⟩
abbrev main_v3709 : Ref sig .tc := ⟨.hbm, 4085, rfl⟩
abbrev main_v3710 : Ref sig .tc := ⟨.hbm, 4086, rfl⟩
abbrev main_v3711 : Ref sig .tc := ⟨.hbm, 4087, rfl⟩
abbrev main_v3712 : Ref sig .tc := ⟨.hbm, 4088, rfl⟩
abbrev main_v3713 : Ref sig .tc := ⟨.hbm, 4089, rfl⟩
abbrev main_v3714 : Ref sig .tc := ⟨.hbm, 4090, rfl⟩
abbrev main_v3715 : Ref sig .tc := ⟨.hbm, 4091, rfl⟩
abbrev main_v3716 : Ref sig .tc := ⟨.hbm, 4092, rfl⟩
abbrev main_v3717 : Ref sig .tc := ⟨.hbm, 4093, rfl⟩
abbrev main_v3718 : Ref sig .tc := ⟨.hbm, 4094, rfl⟩
abbrev main_v3719 : Ref sig .tc := ⟨.hbm, 4095, rfl⟩
abbrev main_v3720 : Ref sig .tc := ⟨.hbm, 4096, rfl⟩
abbrev main_cst_370 : Ref sig .tc := ⟨.hbm, 4097, rfl⟩
abbrev main_v3721 : Ref sig .tc := ⟨.hbm, 4098, rfl⟩
abbrev main_c_371 : Ref sig .tc := ⟨.hbm, 4099, rfl⟩
abbrev main_v3722 : Ref sig .tc := ⟨.hbm, 4100, rfl⟩
abbrev main_v3723 : Ref sig .tc := ⟨.hbm, 4101, rfl⟩
abbrev main_v3724 : Ref sig .tc := ⟨.hbm, 4102, rfl⟩
abbrev main_v3725 : Ref sig .tc := ⟨.hbm, 4103, rfl⟩
abbrev main_v3726 : Ref sig .tc := ⟨.hbm, 4104, rfl⟩
abbrev main_v3727 : Ref sig .tc := ⟨.hbm, 4105, rfl⟩
abbrev main_v3728 : Ref sig .tc := ⟨.hbm, 4106, rfl⟩
abbrev main_v3729 : Ref sig .tc := ⟨.hbm, 4107, rfl⟩
abbrev main_v3730 : Ref sig .tc := ⟨.hbm, 4108, rfl⟩
abbrev main_v3731 : Ref sig .tc := ⟨.hbm, 4109, rfl⟩
abbrev main_v3732 : Ref sig .tc := ⟨.hbm, 4110, rfl⟩
abbrev main_v3733 : Ref sig .tc := ⟨.hbm, 4111, rfl⟩
abbrev main_v3734 : Ref sig .tc := ⟨.hbm, 4112, rfl⟩
abbrev main_v3735 : Ref sig .tc := ⟨.hbm, 4113, rfl⟩
abbrev main_v3736 : Ref sig .tc := ⟨.hbm, 4114, rfl⟩
abbrev main_v3737 : Ref sig .tc := ⟨.hbm, 4115, rfl⟩
abbrev main_v3738 : Ref sig .tc := ⟨.hbm, 4116, rfl⟩
abbrev main_v3739 : Ref sig .tc := ⟨.hbm, 4117, rfl⟩
abbrev main_v3740 : Ref sig .tc := ⟨.hbm, 4118, rfl⟩
abbrev main_cst_372 : Ref sig .tc := ⟨.hbm, 4119, rfl⟩
abbrev main_v3741 : Ref sig .tc := ⟨.hbm, 4120, rfl⟩
abbrev main_c_373 : Ref sig .tc := ⟨.hbm, 4121, rfl⟩
abbrev main_v3742 : Ref sig .tc := ⟨.hbm, 4122, rfl⟩
abbrev main_v3743 : Ref sig .tc := ⟨.hbm, 4123, rfl⟩
abbrev main_v3744 : Ref sig .tc := ⟨.hbm, 4124, rfl⟩
abbrev main_v3745 : Ref sig .tc := ⟨.hbm, 4125, rfl⟩
abbrev main_v3746 : Ref sig .tc := ⟨.hbm, 4126, rfl⟩
abbrev main_v3747 : Ref sig .tc := ⟨.hbm, 4127, rfl⟩
abbrev main_v3748 : Ref sig .tc := ⟨.hbm, 4128, rfl⟩
abbrev main_v3749 : Ref sig .tc := ⟨.hbm, 4129, rfl⟩
abbrev main_v3750 : Ref sig .tc := ⟨.hbm, 4130, rfl⟩
abbrev main_v3751 : Ref sig .tc := ⟨.hbm, 4131, rfl⟩
abbrev main_v3752 : Ref sig .tc := ⟨.hbm, 4132, rfl⟩
abbrev main_v3753 : Ref sig .tc := ⟨.hbm, 4133, rfl⟩
abbrev main_v3754 : Ref sig .tc := ⟨.hbm, 4134, rfl⟩
abbrev main_v3755 : Ref sig .tc := ⟨.hbm, 4135, rfl⟩
abbrev main_v3756 : Ref sig .tc := ⟨.hbm, 4136, rfl⟩
abbrev main_v3757 : Ref sig .tc := ⟨.hbm, 4137, rfl⟩
abbrev main_v3758 : Ref sig .tc := ⟨.hbm, 4138, rfl⟩
abbrev main_v3759 : Ref sig .tc := ⟨.hbm, 4139, rfl⟩
abbrev main_v3760 : Ref sig .tc := ⟨.hbm, 4140, rfl⟩
abbrev main_cst_374 : Ref sig .tc := ⟨.hbm, 4141, rfl⟩
abbrev main_v3761 : Ref sig .tc := ⟨.hbm, 4142, rfl⟩
abbrev main_c_375 : Ref sig .tc := ⟨.hbm, 4143, rfl⟩
abbrev main_v3762 : Ref sig .tc := ⟨.hbm, 4144, rfl⟩
abbrev main_v3763 : Ref sig .tc := ⟨.hbm, 4145, rfl⟩
abbrev main_v3764 : Ref sig .tc := ⟨.hbm, 4146, rfl⟩
abbrev main_v3765 : Ref sig .tc := ⟨.hbm, 4147, rfl⟩
abbrev main_v3766 : Ref sig .tc := ⟨.hbm, 4148, rfl⟩
abbrev main_v3767 : Ref sig .tc := ⟨.hbm, 4149, rfl⟩
abbrev main_v3768 : Ref sig .tc := ⟨.hbm, 4150, rfl⟩
abbrev main_v3769 : Ref sig .tc := ⟨.hbm, 4151, rfl⟩
abbrev main_v3770 : Ref sig .tc := ⟨.hbm, 4152, rfl⟩
abbrev main_v3771 : Ref sig .tc := ⟨.hbm, 4153, rfl⟩
abbrev main_v3772 : Ref sig .tc := ⟨.hbm, 4154, rfl⟩
abbrev main_v3773 : Ref sig .tc := ⟨.hbm, 4155, rfl⟩
abbrev main_v3774 : Ref sig .tc := ⟨.hbm, 4156, rfl⟩
abbrev main_v3775 : Ref sig .tc := ⟨.hbm, 4157, rfl⟩
abbrev main_v3776 : Ref sig .tc := ⟨.hbm, 4158, rfl⟩
abbrev main_v3777 : Ref sig .tc := ⟨.hbm, 4159, rfl⟩
abbrev main_v3778 : Ref sig .tc := ⟨.hbm, 4160, rfl⟩
abbrev main_v3779 : Ref sig .tc := ⟨.hbm, 4161, rfl⟩
abbrev main_v3780 : Ref sig .tc := ⟨.hbm, 4162, rfl⟩
abbrev main_cst_376 : Ref sig .tc := ⟨.hbm, 4163, rfl⟩
abbrev main_v3781 : Ref sig .tc := ⟨.hbm, 4164, rfl⟩
abbrev main_c_377 : Ref sig .tc := ⟨.hbm, 4165, rfl⟩
abbrev main_v3782 : Ref sig .tc := ⟨.hbm, 4166, rfl⟩
abbrev main_v3783 : Ref sig .tc := ⟨.hbm, 4167, rfl⟩
abbrev main_v3784 : Ref sig .tc := ⟨.hbm, 4168, rfl⟩
abbrev main_v3785 : Ref sig .tc := ⟨.hbm, 4169, rfl⟩
abbrev main_v3786 : Ref sig .tc := ⟨.hbm, 4170, rfl⟩
abbrev main_v3787 : Ref sig .tc := ⟨.hbm, 4171, rfl⟩
abbrev main_v3788 : Ref sig .tc := ⟨.hbm, 4172, rfl⟩
abbrev main_v3789 : Ref sig .tc := ⟨.hbm, 4173, rfl⟩
abbrev main_v3790 : Ref sig .tc := ⟨.hbm, 4174, rfl⟩
abbrev main_v3791 : Ref sig .tc := ⟨.hbm, 4175, rfl⟩
abbrev main_v3792 : Ref sig .tc := ⟨.hbm, 4176, rfl⟩
abbrev main_v3793 : Ref sig .tc := ⟨.hbm, 4177, rfl⟩
abbrev main_v3794 : Ref sig .tc := ⟨.hbm, 4178, rfl⟩
abbrev main_v3795 : Ref sig .tc := ⟨.hbm, 4179, rfl⟩
abbrev main_v3796 : Ref sig .tc := ⟨.hbm, 4180, rfl⟩
abbrev main_v3797 : Ref sig .tc := ⟨.hbm, 4181, rfl⟩
abbrev main_v3798 : Ref sig .tc := ⟨.hbm, 4182, rfl⟩
abbrev main_v3799 : Ref sig .tc := ⟨.hbm, 4183, rfl⟩
abbrev main_v3800 : Ref sig .tc := ⟨.hbm, 4184, rfl⟩
abbrev main_cst_378 : Ref sig .tc := ⟨.hbm, 4185, rfl⟩
abbrev main_v3801 : Ref sig .tc := ⟨.hbm, 4186, rfl⟩
abbrev main_c_379 : Ref sig .tc := ⟨.hbm, 4187, rfl⟩
abbrev main_v3802 : Ref sig .tc := ⟨.hbm, 4188, rfl⟩
abbrev main_v3803 : Ref sig .tc := ⟨.hbm, 4189, rfl⟩
abbrev main_v3804 : Ref sig .tc := ⟨.hbm, 4190, rfl⟩
abbrev main_v3805 : Ref sig .tc := ⟨.hbm, 4191, rfl⟩
abbrev main_v3806 : Ref sig .tc := ⟨.hbm, 4192, rfl⟩
abbrev main_v3807 : Ref sig .tc := ⟨.hbm, 4193, rfl⟩
abbrev main_v3808 : Ref sig .tc := ⟨.hbm, 4194, rfl⟩
abbrev main_v3809 : Ref sig .tc := ⟨.hbm, 4195, rfl⟩
abbrev main_v3810 : Ref sig .tc := ⟨.hbm, 4196, rfl⟩
abbrev main_v3811 : Ref sig .tc := ⟨.hbm, 4197, rfl⟩
abbrev main_v3812 : Ref sig .tc := ⟨.hbm, 4198, rfl⟩
abbrev main_v3813 : Ref sig .tc := ⟨.hbm, 4199, rfl⟩
abbrev main_v3814 : Ref sig .tc := ⟨.hbm, 4200, rfl⟩
abbrev main_v3815 : Ref sig .tc := ⟨.hbm, 4201, rfl⟩
abbrev main_v3816 : Ref sig .tc := ⟨.hbm, 4202, rfl⟩
abbrev main_v3817 : Ref sig .tc := ⟨.hbm, 4203, rfl⟩
abbrev main_v3818 : Ref sig .tc := ⟨.hbm, 4204, rfl⟩
abbrev main_v3819 : Ref sig .tc := ⟨.hbm, 4205, rfl⟩
abbrev main_v3820 : Ref sig .tc := ⟨.hbm, 4206, rfl⟩
abbrev main_cst_380 : Ref sig .tc := ⟨.hbm, 4207, rfl⟩
abbrev main_v3821 : Ref sig .tc := ⟨.hbm, 4208, rfl⟩
abbrev main_c_381 : Ref sig .tc := ⟨.hbm, 4209, rfl⟩
abbrev main_v3822 : Ref sig .tc := ⟨.hbm, 4210, rfl⟩
abbrev main_v3823 : Ref sig .tc := ⟨.hbm, 4211, rfl⟩
abbrev main_v3824 : Ref sig .tc := ⟨.hbm, 4212, rfl⟩
abbrev main_v3825 : Ref sig .tc := ⟨.hbm, 4213, rfl⟩
abbrev main_v3826 : Ref sig .tc := ⟨.hbm, 4214, rfl⟩
abbrev main_v3827 : Ref sig .tc := ⟨.hbm, 4215, rfl⟩
abbrev main_v3828 : Ref sig .tc := ⟨.hbm, 4216, rfl⟩
abbrev main_v3829 : Ref sig .tc := ⟨.hbm, 4217, rfl⟩
abbrev main_v3830 : Ref sig .tc := ⟨.hbm, 4218, rfl⟩
abbrev main_v3831 : Ref sig .tc := ⟨.hbm, 4219, rfl⟩
abbrev main_v3832 : Ref sig .tc := ⟨.hbm, 4220, rfl⟩
abbrev main_v3833 : Ref sig .tc := ⟨.hbm, 4221, rfl⟩
abbrev main_v3834 : Ref sig .tc := ⟨.hbm, 4222, rfl⟩
abbrev main_v3835 : Ref sig .tc := ⟨.hbm, 4223, rfl⟩
abbrev main_v3836 : Ref sig .tc := ⟨.hbm, 4224, rfl⟩
abbrev main_v3837 : Ref sig .tc := ⟨.hbm, 4225, rfl⟩
abbrev main_v3838 : Ref sig .tc := ⟨.hbm, 4226, rfl⟩
abbrev main_v3839 : Ref sig .tc := ⟨.hbm, 4227, rfl⟩
abbrev main_v3840 : Ref sig .tc := ⟨.hbm, 4228, rfl⟩
abbrev main_cst_382 : Ref sig .tc := ⟨.hbm, 4229, rfl⟩
abbrev main_v3841 : Ref sig .tc := ⟨.hbm, 4230, rfl⟩
abbrev main_c_383 : Ref sig .tc := ⟨.hbm, 4231, rfl⟩
abbrev main_v3842 : Ref sig .tc := ⟨.hbm, 4232, rfl⟩
abbrev main_v3843 : Ref sig .tc := ⟨.hbm, 4233, rfl⟩
abbrev main_v3844 : Ref sig .tc := ⟨.hbm, 4234, rfl⟩
abbrev main_v3845 : Ref sig .tc := ⟨.hbm, 4235, rfl⟩
abbrev main_v3846 : Ref sig .tc := ⟨.hbm, 4236, rfl⟩
abbrev main_v3847 : Ref sig .tc := ⟨.hbm, 4237, rfl⟩
abbrev main_v3848 : Ref sig .tc := ⟨.hbm, 4238, rfl⟩
abbrev main_v3849 : Ref sig .tc := ⟨.hbm, 4239, rfl⟩
abbrev main_v3850 : Ref sig .tc := ⟨.hbm, 4240, rfl⟩
abbrev main_v3851 : Ref sig .tc := ⟨.hbm, 4241, rfl⟩
abbrev main_v3852 : Ref sig .tc := ⟨.hbm, 4242, rfl⟩
abbrev main_v3853 : Ref sig .tc := ⟨.hbm, 4243, rfl⟩
abbrev main_v3854 : Ref sig .tc := ⟨.hbm, 4244, rfl⟩
abbrev main_v3855 : Ref sig .tc := ⟨.hbm, 4245, rfl⟩
abbrev main_v3856 : Ref sig .tc := ⟨.hbm, 4246, rfl⟩
abbrev main_v3857 : Ref sig .tc := ⟨.hbm, 4247, rfl⟩
abbrev main_v3858 : Ref sig .tc := ⟨.hbm, 4248, rfl⟩
abbrev main_v3859 : Ref sig .tc := ⟨.hbm, 4249, rfl⟩
abbrev main_v3860 : Ref sig .tc := ⟨.hbm, 4250, rfl⟩
abbrev main_cst_384 : Ref sig .tc := ⟨.hbm, 4251, rfl⟩
abbrev main_v3861 : Ref sig .tc := ⟨.hbm, 4252, rfl⟩
abbrev main_c_385 : Ref sig .tc := ⟨.hbm, 4253, rfl⟩
abbrev main_v3862 : Ref sig .tc := ⟨.hbm, 4254, rfl⟩
abbrev main_v3863 : Ref sig .tc := ⟨.hbm, 4255, rfl⟩
abbrev main_v3864 : Ref sig .tc := ⟨.hbm, 4256, rfl⟩
abbrev main_v3865 : Ref sig .tc := ⟨.hbm, 4257, rfl⟩
abbrev main_v3866 : Ref sig .tc := ⟨.hbm, 4258, rfl⟩
abbrev main_v3867 : Ref sig .tc := ⟨.hbm, 4259, rfl⟩
abbrev main_v3868 : Ref sig .tc := ⟨.hbm, 4260, rfl⟩
abbrev main_v3869 : Ref sig .tc := ⟨.hbm, 4261, rfl⟩
abbrev main_v3870 : Ref sig .tc := ⟨.hbm, 4262, rfl⟩
abbrev main_v3871 : Ref sig .tc := ⟨.hbm, 4263, rfl⟩
abbrev main_v3872 : Ref sig .tc := ⟨.hbm, 4264, rfl⟩
abbrev main_v3873 : Ref sig .tc := ⟨.hbm, 4265, rfl⟩
abbrev main_v3874 : Ref sig .tc := ⟨.hbm, 4266, rfl⟩
abbrev main_v3875 : Ref sig .tc := ⟨.hbm, 4267, rfl⟩
abbrev main_v3876 : Ref sig .tc := ⟨.hbm, 4268, rfl⟩
abbrev main_v3877 : Ref sig .tc := ⟨.hbm, 4269, rfl⟩
abbrev main_v3878 : Ref sig .tc := ⟨.hbm, 4270, rfl⟩
abbrev main_v3879 : Ref sig .tc := ⟨.hbm, 4271, rfl⟩
abbrev main_v3880 : Ref sig .tc := ⟨.hbm, 4272, rfl⟩
abbrev main_cst_386 : Ref sig .tc := ⟨.hbm, 4273, rfl⟩
abbrev main_v3881 : Ref sig .tc := ⟨.hbm, 4274, rfl⟩
abbrev main_c_387 : Ref sig .tc := ⟨.hbm, 4275, rfl⟩
abbrev main_v3882 : Ref sig .tc := ⟨.hbm, 4276, rfl⟩
abbrev main_v3883 : Ref sig .tc := ⟨.hbm, 4277, rfl⟩
abbrev main_v3884 : Ref sig .tc := ⟨.hbm, 4278, rfl⟩
abbrev main_v3885 : Ref sig .tc := ⟨.hbm, 4279, rfl⟩
abbrev main_v3886 : Ref sig .tc := ⟨.hbm, 4280, rfl⟩
abbrev main_v3887 : Ref sig .tc := ⟨.hbm, 4281, rfl⟩
abbrev main_v3888 : Ref sig .tc := ⟨.hbm, 4282, rfl⟩
abbrev main_v3889 : Ref sig .tc := ⟨.hbm, 4283, rfl⟩
abbrev main_v3890 : Ref sig .tc := ⟨.hbm, 4284, rfl⟩
abbrev main_v3891 : Ref sig .tc := ⟨.hbm, 4285, rfl⟩
abbrev main_v3892 : Ref sig .tc := ⟨.hbm, 4286, rfl⟩
abbrev main_v3893 : Ref sig .tc := ⟨.hbm, 4287, rfl⟩
abbrev main_v3894 : Ref sig .tc := ⟨.hbm, 4288, rfl⟩
abbrev main_v3895 : Ref sig .tc := ⟨.hbm, 4289, rfl⟩
abbrev main_v3896 : Ref sig .tc := ⟨.hbm, 4290, rfl⟩
abbrev main_v3897 : Ref sig .tc := ⟨.hbm, 4291, rfl⟩
abbrev main_v3898 : Ref sig .tc := ⟨.hbm, 4292, rfl⟩
abbrev main_v3899 : Ref sig .tc := ⟨.hbm, 4293, rfl⟩
abbrev main_v3900 : Ref sig .tc := ⟨.hbm, 4294, rfl⟩
abbrev main_cst_388 : Ref sig .tc := ⟨.hbm, 4295, rfl⟩
abbrev main_v3901 : Ref sig .tc := ⟨.hbm, 4296, rfl⟩
abbrev main_c_389 : Ref sig .tc := ⟨.hbm, 4297, rfl⟩
abbrev main_v3902 : Ref sig .tc := ⟨.hbm, 4298, rfl⟩
abbrev main_v3903 : Ref sig .tc := ⟨.hbm, 4299, rfl⟩
abbrev main_v3904 : Ref sig .tc := ⟨.hbm, 4300, rfl⟩
abbrev main_v3905 : Ref sig .tc := ⟨.hbm, 4301, rfl⟩
abbrev main_v3906 : Ref sig .tc := ⟨.hbm, 4302, rfl⟩
abbrev main_v3907 : Ref sig .tc := ⟨.hbm, 4303, rfl⟩
abbrev main_v3908 : Ref sig .tc := ⟨.hbm, 4304, rfl⟩
abbrev main_v3909 : Ref sig .tc := ⟨.hbm, 4305, rfl⟩
abbrev main_v3910 : Ref sig .tc := ⟨.hbm, 4306, rfl⟩
abbrev main_v3911 : Ref sig .tc := ⟨.hbm, 4307, rfl⟩
abbrev main_v3912 : Ref sig .tc := ⟨.hbm, 4308, rfl⟩
abbrev main_v3913 : Ref sig .tc := ⟨.hbm, 4309, rfl⟩
abbrev main_v3914 : Ref sig .tc := ⟨.hbm, 4310, rfl⟩
abbrev main_v3915 : Ref sig .tc := ⟨.hbm, 4311, rfl⟩
abbrev main_v3916 : Ref sig .tc := ⟨.hbm, 4312, rfl⟩
abbrev main_v3917 : Ref sig .tc := ⟨.hbm, 4313, rfl⟩
abbrev main_v3918 : Ref sig .tc := ⟨.hbm, 4314, rfl⟩
abbrev main_v3919 : Ref sig .tc := ⟨.hbm, 4315, rfl⟩
abbrev main_v3920 : Ref sig .tc := ⟨.hbm, 4316, rfl⟩
abbrev main_cst_390 : Ref sig .tc := ⟨.hbm, 4317, rfl⟩
abbrev main_v3921 : Ref sig .tc := ⟨.hbm, 4318, rfl⟩
abbrev main_c_391 : Ref sig .tc := ⟨.hbm, 4319, rfl⟩
abbrev main_v3922 : Ref sig .tc := ⟨.hbm, 4320, rfl⟩
abbrev main_v3923 : Ref sig .tc := ⟨.hbm, 4321, rfl⟩
abbrev main_v3924 : Ref sig .tc := ⟨.hbm, 4322, rfl⟩
abbrev main_v3925 : Ref sig .tc := ⟨.hbm, 4323, rfl⟩
abbrev main_v3926 : Ref sig .tc := ⟨.hbm, 4324, rfl⟩
abbrev main_v3927 : Ref sig .tc := ⟨.hbm, 4325, rfl⟩
abbrev main_v3928 : Ref sig .tc := ⟨.hbm, 4326, rfl⟩
abbrev main_v3929 : Ref sig .tc := ⟨.hbm, 4327, rfl⟩
abbrev main_v3930 : Ref sig .tc := ⟨.hbm, 4328, rfl⟩
abbrev main_v3931 : Ref sig .tc := ⟨.hbm, 4329, rfl⟩
abbrev main_v3932 : Ref sig .tc := ⟨.hbm, 4330, rfl⟩
abbrev main_v3933 : Ref sig .tc := ⟨.hbm, 4331, rfl⟩
abbrev main_v3934 : Ref sig .tc := ⟨.hbm, 4332, rfl⟩
abbrev main_v3935 : Ref sig .tc := ⟨.hbm, 4333, rfl⟩
abbrev main_v3936 : Ref sig .tc := ⟨.hbm, 4334, rfl⟩
abbrev main_v3937 : Ref sig .tc := ⟨.hbm, 4335, rfl⟩
abbrev main_v3938 : Ref sig .tc := ⟨.hbm, 4336, rfl⟩
abbrev main_v3939 : Ref sig .tc := ⟨.hbm, 4337, rfl⟩
abbrev main_v3940 : Ref sig .tc := ⟨.hbm, 4338, rfl⟩
abbrev main_cst_392 : Ref sig .tc := ⟨.hbm, 4339, rfl⟩
abbrev main_v3941 : Ref sig .tc := ⟨.hbm, 4340, rfl⟩
abbrev main_c_393 : Ref sig .tc := ⟨.hbm, 4341, rfl⟩
abbrev main_v3942 : Ref sig .tc := ⟨.hbm, 4342, rfl⟩
abbrev main_v3943 : Ref sig .tc := ⟨.hbm, 4343, rfl⟩
abbrev main_v3944 : Ref sig .tc := ⟨.hbm, 4344, rfl⟩
abbrev main_v3945 : Ref sig .tc := ⟨.hbm, 4345, rfl⟩
abbrev main_v3946 : Ref sig .tc := ⟨.hbm, 4346, rfl⟩
abbrev main_v3947 : Ref sig .tc := ⟨.hbm, 4347, rfl⟩
abbrev main_v3948 : Ref sig .tc := ⟨.hbm, 4348, rfl⟩
abbrev main_v3949 : Ref sig .tc := ⟨.hbm, 4349, rfl⟩
abbrev main_v3950 : Ref sig .tc := ⟨.hbm, 4350, rfl⟩
abbrev main_v3951 : Ref sig .tc := ⟨.hbm, 4351, rfl⟩
abbrev main_v3952 : Ref sig .tc := ⟨.hbm, 4352, rfl⟩
abbrev main_v3953 : Ref sig .tc := ⟨.hbm, 4353, rfl⟩
abbrev main_v3954 : Ref sig .tc := ⟨.hbm, 4354, rfl⟩
abbrev main_v3955 : Ref sig .tc := ⟨.hbm, 4355, rfl⟩
abbrev main_v3956 : Ref sig .tc := ⟨.hbm, 4356, rfl⟩
abbrev main_v3957 : Ref sig .tc := ⟨.hbm, 4357, rfl⟩
abbrev main_v3958 : Ref sig .tc := ⟨.hbm, 4358, rfl⟩
abbrev main_v3959 : Ref sig .tc := ⟨.hbm, 4359, rfl⟩
abbrev main_v3960 : Ref sig .tc := ⟨.hbm, 4360, rfl⟩
abbrev main_cst_394 : Ref sig .tc := ⟨.hbm, 4361, rfl⟩
abbrev main_v3961 : Ref sig .tc := ⟨.hbm, 4362, rfl⟩
abbrev main_c_395 : Ref sig .tc := ⟨.hbm, 4363, rfl⟩
abbrev main_v3962 : Ref sig .tc := ⟨.hbm, 4364, rfl⟩
abbrev main_v3963 : Ref sig .tc := ⟨.hbm, 4365, rfl⟩
abbrev main_v3964 : Ref sig .tc := ⟨.hbm, 4366, rfl⟩
abbrev main_v3965 : Ref sig .tc := ⟨.hbm, 4367, rfl⟩
abbrev main_v3966 : Ref sig .tc := ⟨.hbm, 4368, rfl⟩
abbrev main_v3967 : Ref sig .tc := ⟨.hbm, 4369, rfl⟩
abbrev main_v3968 : Ref sig .tc := ⟨.hbm, 4370, rfl⟩
abbrev main_v3969 : Ref sig .tc := ⟨.hbm, 4371, rfl⟩
abbrev main_v3970 : Ref sig .tc := ⟨.hbm, 4372, rfl⟩
abbrev main_v3971 : Ref sig .tc := ⟨.hbm, 4373, rfl⟩
abbrev main_v3972 : Ref sig .tc := ⟨.hbm, 4374, rfl⟩
abbrev main_v3973 : Ref sig .tc := ⟨.hbm, 4375, rfl⟩
abbrev main_v3974 : Ref sig .tc := ⟨.hbm, 4376, rfl⟩
abbrev main_v3975 : Ref sig .tc := ⟨.hbm, 4377, rfl⟩
abbrev main_v3976 : Ref sig .tc := ⟨.hbm, 4378, rfl⟩
abbrev main_v3977 : Ref sig .tc := ⟨.hbm, 4379, rfl⟩
abbrev main_v3978 : Ref sig .tc := ⟨.hbm, 4380, rfl⟩
abbrev main_v3979 : Ref sig .tc := ⟨.hbm, 4381, rfl⟩
abbrev main_v3980 : Ref sig .tc := ⟨.hbm, 4382, rfl⟩
abbrev main_cst_396 : Ref sig .tc := ⟨.hbm, 4383, rfl⟩
abbrev main_v3981 : Ref sig .tc := ⟨.hbm, 4384, rfl⟩
abbrev main_c_397 : Ref sig .tc := ⟨.hbm, 4385, rfl⟩
abbrev main_v3982 : Ref sig .tc := ⟨.hbm, 4386, rfl⟩
abbrev main_v3983 : Ref sig .tc := ⟨.hbm, 4387, rfl⟩
abbrev main_v3984 : Ref sig .tc := ⟨.hbm, 4388, rfl⟩
abbrev main_v3985 : Ref sig .tc := ⟨.hbm, 4389, rfl⟩
abbrev main_v3986 : Ref sig .tc := ⟨.hbm, 4390, rfl⟩
abbrev main_v3987 : Ref sig .tc := ⟨.hbm, 4391, rfl⟩
abbrev main_v3988 : Ref sig .tc := ⟨.hbm, 4392, rfl⟩
abbrev main_v3989 : Ref sig .tc := ⟨.hbm, 4393, rfl⟩
abbrev main_v3990 : Ref sig .tc := ⟨.hbm, 4394, rfl⟩
abbrev main_v3991 : Ref sig .tc := ⟨.hbm, 4395, rfl⟩
abbrev main_v3992 : Ref sig .tc := ⟨.hbm, 4396, rfl⟩
abbrev main_v3993 : Ref sig .tc := ⟨.hbm, 4397, rfl⟩
abbrev main_v3994 : Ref sig .tc := ⟨.hbm, 4398, rfl⟩
abbrev main_v3995 : Ref sig .tc := ⟨.hbm, 4399, rfl⟩
abbrev main_v3996 : Ref sig .tc := ⟨.hbm, 4400, rfl⟩
abbrev main_v3997 : Ref sig .tc := ⟨.hbm, 4401, rfl⟩
abbrev main_v3998 : Ref sig .tc := ⟨.hbm, 4402, rfl⟩
abbrev main_v3999 : Ref sig .tc := ⟨.hbm, 4403, rfl⟩
abbrev main_v4000 : Ref sig .tc := ⟨.hbm, 4404, rfl⟩
abbrev main_cst_398 : Ref sig .tc := ⟨.hbm, 4405, rfl⟩
abbrev main_v4001 : Ref sig .tc := ⟨.hbm, 4406, rfl⟩
abbrev main_c_399 : Ref sig .tc := ⟨.hbm, 4407, rfl⟩
abbrev main_v4002 : Ref sig .tc := ⟨.hbm, 4408, rfl⟩
abbrev main_v4003 : Ref sig .tc := ⟨.hbm, 4409, rfl⟩
abbrev main_v4004 : Ref sig .tc := ⟨.hbm, 4410, rfl⟩
abbrev main_v4005 : Ref sig .tc := ⟨.hbm, 4411, rfl⟩
abbrev main_v4006 : Ref sig .tc := ⟨.hbm, 4412, rfl⟩
abbrev main_v4007 : Ref sig .tc := ⟨.hbm, 4413, rfl⟩
abbrev main_v4008 : Ref sig .tc := ⟨.hbm, 4414, rfl⟩
abbrev main_v4009 : Ref sig .tc := ⟨.hbm, 4415, rfl⟩
abbrev main_v4010 : Ref sig .tc := ⟨.hbm, 4416, rfl⟩
abbrev main_v4011 : Ref sig .tc := ⟨.hbm, 4417, rfl⟩
abbrev main_v4012 : Ref sig .tc := ⟨.hbm, 4418, rfl⟩
abbrev main_v4013 : Ref sig .tc := ⟨.hbm, 4419, rfl⟩
abbrev main_v4014 : Ref sig .tc := ⟨.hbm, 4420, rfl⟩
abbrev main_v4015 : Ref sig .tc := ⟨.hbm, 4421, rfl⟩
abbrev main_v4016 : Ref sig .tc := ⟨.hbm, 4422, rfl⟩
abbrev main_v4017 : Ref sig .tc := ⟨.hbm, 4423, rfl⟩
abbrev main_v4018 : Ref sig .tc := ⟨.hbm, 4424, rfl⟩
abbrev main_v4019 : Ref sig .tc := ⟨.hbm, 4425, rfl⟩
abbrev main_v4020 : Ref sig .tc := ⟨.hbm, 4426, rfl⟩
abbrev main_cst_400 : Ref sig .tc := ⟨.hbm, 4427, rfl⟩
abbrev main_v4021 : Ref sig .tc := ⟨.hbm, 4428, rfl⟩
abbrev main_c_401 : Ref sig .tc := ⟨.hbm, 4429, rfl⟩
abbrev main_v4022 : Ref sig .tc := ⟨.hbm, 4430, rfl⟩
abbrev main_v4023 : Ref sig .tc := ⟨.hbm, 4431, rfl⟩
abbrev main_v4024 : Ref sig .tc := ⟨.hbm, 4432, rfl⟩
abbrev main_v4025 : Ref sig .tc := ⟨.hbm, 4433, rfl⟩
abbrev main_v4026 : Ref sig .tc := ⟨.hbm, 4434, rfl⟩
abbrev main_v4027 : Ref sig .tc := ⟨.hbm, 4435, rfl⟩
abbrev main_v4028 : Ref sig .tc := ⟨.hbm, 4436, rfl⟩
abbrev main_v4029 : Ref sig .tc := ⟨.hbm, 4437, rfl⟩
abbrev main_v4030 : Ref sig .tc := ⟨.hbm, 4438, rfl⟩
abbrev main_v4031 : Ref sig .tc := ⟨.hbm, 4439, rfl⟩
abbrev main_v4032 : Ref sig .tc := ⟨.hbm, 4440, rfl⟩
abbrev main_v4033 : Ref sig .tc := ⟨.hbm, 4441, rfl⟩
abbrev main_v4034 : Ref sig .tc := ⟨.hbm, 4442, rfl⟩
abbrev main_v4035 : Ref sig .tc := ⟨.hbm, 4443, rfl⟩
abbrev main_v4036 : Ref sig .tc := ⟨.hbm, 4444, rfl⟩
abbrev main_v4037 : Ref sig .tc := ⟨.hbm, 4445, rfl⟩
abbrev main_v4038 : Ref sig .tc := ⟨.hbm, 4446, rfl⟩
abbrev main_v4039 : Ref sig .tc := ⟨.hbm, 4447, rfl⟩
abbrev main_v4040 : Ref sig .tc := ⟨.hbm, 4448, rfl⟩
abbrev main_cst_402 : Ref sig .tc := ⟨.hbm, 4449, rfl⟩
abbrev main_v4041 : Ref sig .tc := ⟨.hbm, 4450, rfl⟩
abbrev main_c_403 : Ref sig .tc := ⟨.hbm, 4451, rfl⟩
abbrev main_v4042 : Ref sig .tc := ⟨.hbm, 4452, rfl⟩
abbrev main_v4043 : Ref sig .tc := ⟨.hbm, 4453, rfl⟩
abbrev main_v4044 : Ref sig .tc := ⟨.hbm, 4454, rfl⟩
abbrev main_v4045 : Ref sig .tc := ⟨.hbm, 4455, rfl⟩
abbrev main_v4046 : Ref sig .tc := ⟨.hbm, 4456, rfl⟩
abbrev main_v4047 : Ref sig .tc := ⟨.hbm, 4457, rfl⟩
abbrev main_v4048 : Ref sig .tc := ⟨.hbm, 4458, rfl⟩
abbrev main_v4049 : Ref sig .tc := ⟨.hbm, 4459, rfl⟩
abbrev main_v4050 : Ref sig .tc := ⟨.hbm, 4460, rfl⟩
abbrev main_v4051 : Ref sig .tc := ⟨.hbm, 4461, rfl⟩
abbrev main_v4052 : Ref sig .tc := ⟨.hbm, 4462, rfl⟩
abbrev main_v4053 : Ref sig .tc := ⟨.hbm, 4463, rfl⟩
abbrev main_v4054 : Ref sig .tc := ⟨.hbm, 4464, rfl⟩
abbrev main_v4055 : Ref sig .tc := ⟨.hbm, 4465, rfl⟩
abbrev main_v4056 : Ref sig .tc := ⟨.hbm, 4466, rfl⟩
abbrev main_v4057 : Ref sig .tc := ⟨.hbm, 4467, rfl⟩
abbrev main_v4058 : Ref sig .tc := ⟨.hbm, 4468, rfl⟩
abbrev main_v4059 : Ref sig .tc := ⟨.hbm, 4469, rfl⟩
abbrev main_v4060 : Ref sig .tc := ⟨.hbm, 4470, rfl⟩
abbrev main_cst_404 : Ref sig .tc := ⟨.hbm, 4471, rfl⟩
abbrev main_v4061 : Ref sig .tc := ⟨.hbm, 4472, rfl⟩
abbrev main_c_405 : Ref sig .tc := ⟨.hbm, 4473, rfl⟩
abbrev main_v4062 : Ref sig .tc := ⟨.hbm, 4474, rfl⟩
abbrev main_v4063 : Ref sig .tc := ⟨.hbm, 4475, rfl⟩
abbrev main_v4064 : Ref sig .tc := ⟨.hbm, 4476, rfl⟩
abbrev main_v4065 : Ref sig .tc := ⟨.hbm, 4477, rfl⟩
abbrev main_v4066 : Ref sig .tc := ⟨.hbm, 4478, rfl⟩
abbrev main_v4067 : Ref sig .tc := ⟨.hbm, 4479, rfl⟩
abbrev main_v4068 : Ref sig .tc := ⟨.hbm, 4480, rfl⟩
abbrev main_v4069 : Ref sig .tc := ⟨.hbm, 4481, rfl⟩
abbrev main_v4070 : Ref sig .tc := ⟨.hbm, 4482, rfl⟩
abbrev main_v4071 : Ref sig .tc := ⟨.hbm, 4483, rfl⟩
abbrev main_v4072 : Ref sig .tc := ⟨.hbm, 4484, rfl⟩
abbrev main_v4073 : Ref sig .tc := ⟨.hbm, 4485, rfl⟩
abbrev main_v4074 : Ref sig .tc := ⟨.hbm, 4486, rfl⟩
abbrev main_v4075 : Ref sig .tc := ⟨.hbm, 4487, rfl⟩
abbrev main_v4076 : Ref sig .tc := ⟨.hbm, 4488, rfl⟩
abbrev main_v4077 : Ref sig .tc := ⟨.hbm, 4489, rfl⟩
abbrev main_v4078 : Ref sig .tc := ⟨.hbm, 4490, rfl⟩
abbrev main_v4079 : Ref sig .tc := ⟨.hbm, 4491, rfl⟩
abbrev main_v4080 : Ref sig .tc := ⟨.hbm, 4492, rfl⟩
abbrev main_cst_406 : Ref sig .tc := ⟨.hbm, 4493, rfl⟩
abbrev main_v4081 : Ref sig .tc := ⟨.hbm, 4494, rfl⟩
abbrev main_c_407 : Ref sig .tc := ⟨.hbm, 4495, rfl⟩
abbrev main_v4082 : Ref sig .tc := ⟨.hbm, 4496, rfl⟩
abbrev main_v4083 : Ref sig .tc := ⟨.hbm, 4497, rfl⟩
abbrev main_v4084 : Ref sig .tc := ⟨.hbm, 4498, rfl⟩
abbrev main_v4085 : Ref sig .tc := ⟨.hbm, 4499, rfl⟩
abbrev main_v4086 : Ref sig .tc := ⟨.hbm, 4500, rfl⟩
abbrev main_v4087 : Ref sig .tc := ⟨.hbm, 4501, rfl⟩
abbrev main_v4088 : Ref sig .tc := ⟨.hbm, 4502, rfl⟩
abbrev main_v4089 : Ref sig .tc := ⟨.hbm, 4503, rfl⟩
abbrev main_v4090 : Ref sig .tc := ⟨.hbm, 4504, rfl⟩
abbrev main_v4091 : Ref sig .tc := ⟨.hbm, 4505, rfl⟩
abbrev main_v4092 : Ref sig .tc := ⟨.hbm, 4506, rfl⟩
abbrev main_v4093 : Ref sig .tc := ⟨.hbm, 4507, rfl⟩
abbrev main_v4094 : Ref sig .tc := ⟨.hbm, 4508, rfl⟩
abbrev main_v4095 : Ref sig .tc := ⟨.hbm, 4509, rfl⟩
abbrev main_v4096 : Ref sig .tc := ⟨.hbm, 4510, rfl⟩
abbrev main_v4097 : Ref sig .tc := ⟨.hbm, 4511, rfl⟩
abbrev main_v4098 : Ref sig .tc := ⟨.hbm, 4512, rfl⟩
abbrev main_v4099 : Ref sig .tc := ⟨.hbm, 4513, rfl⟩
abbrev main_v4100 : Ref sig .tc := ⟨.hbm, 4514, rfl⟩
abbrev main_cst_408 : Ref sig .tc := ⟨.hbm, 4515, rfl⟩
abbrev main_v4101 : Ref sig .tc := ⟨.hbm, 4516, rfl⟩
abbrev main_c_409 : Ref sig .tc := ⟨.hbm, 4517, rfl⟩
abbrev main_v4102 : Ref sig .tc := ⟨.hbm, 4518, rfl⟩
abbrev main_v4103 : Ref sig .tc := ⟨.hbm, 4519, rfl⟩
abbrev main_v4104 : Ref sig .tc := ⟨.hbm, 4520, rfl⟩
abbrev main_v4105 : Ref sig .tc := ⟨.hbm, 4521, rfl⟩
abbrev main_v4106 : Ref sig .tc := ⟨.hbm, 4522, rfl⟩
abbrev main_v4107 : Ref sig .tc := ⟨.hbm, 4523, rfl⟩
abbrev main_v4108 : Ref sig .tc := ⟨.hbm, 4524, rfl⟩
abbrev main_v4109 : Ref sig .tc := ⟨.hbm, 4525, rfl⟩
abbrev main_v4110 : Ref sig .tc := ⟨.hbm, 4526, rfl⟩
abbrev main_v4111 : Ref sig .tc := ⟨.hbm, 4527, rfl⟩
abbrev main_v4112 : Ref sig .tc := ⟨.hbm, 4528, rfl⟩
abbrev main_v4113 : Ref sig .tc := ⟨.hbm, 4529, rfl⟩
abbrev main_v4114 : Ref sig .tc := ⟨.hbm, 4530, rfl⟩
abbrev main_v4115 : Ref sig .tc := ⟨.hbm, 4531, rfl⟩
abbrev main_v4116 : Ref sig .tc := ⟨.hbm, 4532, rfl⟩
abbrev main_v4117 : Ref sig .tc := ⟨.hbm, 4533, rfl⟩
abbrev main_v4118 : Ref sig .tc := ⟨.hbm, 4534, rfl⟩
abbrev main_v4119 : Ref sig .tc := ⟨.hbm, 4535, rfl⟩
abbrev main_v4120 : Ref sig .tc := ⟨.hbm, 4536, rfl⟩
abbrev main_cst_410 : Ref sig .tc := ⟨.hbm, 4537, rfl⟩
abbrev main_v4121 : Ref sig .tc := ⟨.hbm, 4538, rfl⟩
abbrev main_c_411 : Ref sig .tc := ⟨.hbm, 4539, rfl⟩
abbrev main_v4122 : Ref sig .tc := ⟨.hbm, 4540, rfl⟩
abbrev main_v4123 : Ref sig .tc := ⟨.hbm, 4541, rfl⟩
abbrev main_v4124 : Ref sig .tc := ⟨.hbm, 4542, rfl⟩
abbrev main_v4125 : Ref sig .tc := ⟨.hbm, 4543, rfl⟩
abbrev main_v4126 : Ref sig .tc := ⟨.hbm, 4544, rfl⟩
abbrev main_v4127 : Ref sig .tc := ⟨.hbm, 4545, rfl⟩
abbrev main_v4128 : Ref sig .tc := ⟨.hbm, 4546, rfl⟩
abbrev main_v4129 : Ref sig .tc := ⟨.hbm, 4547, rfl⟩
abbrev main_v4130 : Ref sig .tc := ⟨.hbm, 4548, rfl⟩
abbrev main_v4131 : Ref sig .tc := ⟨.hbm, 4549, rfl⟩
abbrev main_v4132 : Ref sig .tc := ⟨.hbm, 4550, rfl⟩
abbrev main_v4133 : Ref sig .tc := ⟨.hbm, 4551, rfl⟩
abbrev main_v4134 : Ref sig .tc := ⟨.hbm, 4552, rfl⟩
abbrev main_v4135 : Ref sig .tc := ⟨.hbm, 4553, rfl⟩
abbrev main_v4136 : Ref sig .tc := ⟨.hbm, 4554, rfl⟩
abbrev main_v4137 : Ref sig .tc := ⟨.hbm, 4555, rfl⟩
abbrev main_v4138 : Ref sig .tc := ⟨.hbm, 4556, rfl⟩
abbrev main_v4139 : Ref sig .tc := ⟨.hbm, 4557, rfl⟩
abbrev main_v4140 : Ref sig .tc := ⟨.hbm, 4558, rfl⟩
abbrev main_cst_412 : Ref sig .tc := ⟨.hbm, 4559, rfl⟩
abbrev main_v4141 : Ref sig .tc := ⟨.hbm, 4560, rfl⟩
abbrev main_c_413 : Ref sig .tc := ⟨.hbm, 4561, rfl⟩
abbrev main_v4142 : Ref sig .tc := ⟨.hbm, 4562, rfl⟩
abbrev main_v4143 : Ref sig .tc := ⟨.hbm, 4563, rfl⟩
abbrev main_v4144 : Ref sig .tc := ⟨.hbm, 4564, rfl⟩
abbrev main_v4145 : Ref sig .tc := ⟨.hbm, 4565, rfl⟩
abbrev main_v4146 : Ref sig .tc := ⟨.hbm, 4566, rfl⟩
abbrev main_v4147 : Ref sig .tc := ⟨.hbm, 4567, rfl⟩
abbrev main_v4148 : Ref sig .tc := ⟨.hbm, 4568, rfl⟩
abbrev main_v4149 : Ref sig .tc := ⟨.hbm, 4569, rfl⟩
abbrev main_v4150 : Ref sig .tc := ⟨.hbm, 4570, rfl⟩
abbrev main_v4151 : Ref sig .tc := ⟨.hbm, 4571, rfl⟩
abbrev main_v4152 : Ref sig .tc := ⟨.hbm, 4572, rfl⟩
abbrev main_v4153 : Ref sig .tc := ⟨.hbm, 4573, rfl⟩
abbrev main_v4154 : Ref sig .tc := ⟨.hbm, 4574, rfl⟩
abbrev main_v4155 : Ref sig .tc := ⟨.hbm, 4575, rfl⟩
abbrev main_v4156 : Ref sig .tc := ⟨.hbm, 4576, rfl⟩
abbrev main_v4157 : Ref sig .tc := ⟨.hbm, 4577, rfl⟩
abbrev main_v4158 : Ref sig .tc := ⟨.hbm, 4578, rfl⟩
abbrev main_v4159 : Ref sig .tc := ⟨.hbm, 4579, rfl⟩
abbrev main_v4160 : Ref sig .tc := ⟨.hbm, 4580, rfl⟩
abbrev main_cst_414 : Ref sig .tc := ⟨.hbm, 4581, rfl⟩
abbrev main_v4161 : Ref sig .tc := ⟨.hbm, 4582, rfl⟩
abbrev main_c_415 : Ref sig .tc := ⟨.hbm, 4583, rfl⟩
abbrev main_v4162 : Ref sig .tc := ⟨.hbm, 4584, rfl⟩
abbrev main_v4163 : Ref sig .tc := ⟨.hbm, 4585, rfl⟩
abbrev main_v4164 : Ref sig .tc := ⟨.hbm, 4586, rfl⟩
abbrev main_v4165 : Ref sig .tc := ⟨.hbm, 4587, rfl⟩
abbrev main_v4166 : Ref sig .tc := ⟨.hbm, 4588, rfl⟩
abbrev main_v4167 : Ref sig .tc := ⟨.hbm, 4589, rfl⟩
abbrev main_v4168 : Ref sig .tc := ⟨.hbm, 4590, rfl⟩
abbrev main_v4169 : Ref sig .tc := ⟨.hbm, 4591, rfl⟩
abbrev main_v4170 : Ref sig .tc := ⟨.hbm, 4592, rfl⟩
abbrev main_v4171 : Ref sig .tc := ⟨.hbm, 4593, rfl⟩
abbrev main_v4172 : Ref sig .tc := ⟨.hbm, 4594, rfl⟩
abbrev main_v4173 : Ref sig .tc := ⟨.hbm, 4595, rfl⟩
abbrev main_v4174 : Ref sig .tc := ⟨.hbm, 4596, rfl⟩
abbrev main_v4175 : Ref sig .tc := ⟨.hbm, 4597, rfl⟩
abbrev main_v4176 : Ref sig .tc := ⟨.hbm, 4598, rfl⟩
abbrev main_v4177 : Ref sig .tc := ⟨.hbm, 4599, rfl⟩
abbrev main_v4178 : Ref sig .tc := ⟨.hbm, 4600, rfl⟩
abbrev main_v4179 : Ref sig .tc := ⟨.hbm, 4601, rfl⟩
abbrev main_v4180 : Ref sig .tc := ⟨.hbm, 4602, rfl⟩
abbrev main_cst_416 : Ref sig .tc := ⟨.hbm, 4603, rfl⟩
abbrev main_v4181 : Ref sig .tc := ⟨.hbm, 4604, rfl⟩
abbrev main_c_417 : Ref sig .tc := ⟨.hbm, 4605, rfl⟩
abbrev main_v4182 : Ref sig .tc := ⟨.hbm, 4606, rfl⟩
abbrev main_v4183 : Ref sig .tc := ⟨.hbm, 4607, rfl⟩
abbrev main_v4184 : Ref sig .tc := ⟨.hbm, 4608, rfl⟩
abbrev main_v4185 : Ref sig .tc := ⟨.hbm, 4609, rfl⟩
abbrev main_v4186 : Ref sig .tc := ⟨.hbm, 4610, rfl⟩
abbrev main_v4187 : Ref sig .tc := ⟨.hbm, 4611, rfl⟩
abbrev main_v4188 : Ref sig .tc := ⟨.hbm, 4612, rfl⟩
abbrev main_v4189 : Ref sig .tc := ⟨.hbm, 4613, rfl⟩
abbrev main_v4190 : Ref sig .tc := ⟨.hbm, 4614, rfl⟩
abbrev main_v4191 : Ref sig .tc := ⟨.hbm, 4615, rfl⟩
abbrev main_v4192 : Ref sig .tc := ⟨.hbm, 4616, rfl⟩
abbrev main_v4193 : Ref sig .tc := ⟨.hbm, 4617, rfl⟩
abbrev main_v4194 : Ref sig .tc := ⟨.hbm, 4618, rfl⟩
abbrev main_v4195 : Ref sig .tc := ⟨.hbm, 4619, rfl⟩
abbrev main_v4196 : Ref sig .tc := ⟨.hbm, 4620, rfl⟩
abbrev main_v4197 : Ref sig .tc := ⟨.hbm, 4621, rfl⟩
abbrev main_v4198 : Ref sig .tc := ⟨.hbm, 4622, rfl⟩
abbrev main_v4199 : Ref sig .tc := ⟨.hbm, 4623, rfl⟩
abbrev main_v4200 : Ref sig .tc := ⟨.hbm, 4624, rfl⟩
abbrev main_cst_418 : Ref sig .tc := ⟨.hbm, 4625, rfl⟩
abbrev main_v4201 : Ref sig .tc := ⟨.hbm, 4626, rfl⟩
abbrev main_c_419 : Ref sig .tc := ⟨.hbm, 4627, rfl⟩
abbrev main_v4202 : Ref sig .tc := ⟨.hbm, 4628, rfl⟩
abbrev main_v4203 : Ref sig .tc := ⟨.hbm, 4629, rfl⟩
abbrev main_v4204 : Ref sig .tc := ⟨.hbm, 4630, rfl⟩
abbrev main_v4205 : Ref sig .tc := ⟨.hbm, 4631, rfl⟩
abbrev main_v4206 : Ref sig .tc := ⟨.hbm, 4632, rfl⟩
abbrev main_v4207 : Ref sig .tc := ⟨.hbm, 4633, rfl⟩
abbrev main_v4208 : Ref sig .tc := ⟨.hbm, 4634, rfl⟩
abbrev main_v4209 : Ref sig .tc := ⟨.hbm, 4635, rfl⟩
abbrev main_v4210 : Ref sig .tc := ⟨.hbm, 4636, rfl⟩
abbrev main_v4211 : Ref sig .tc := ⟨.hbm, 4637, rfl⟩
abbrev main_v4212 : Ref sig .tc := ⟨.hbm, 4638, rfl⟩
abbrev main_v4213 : Ref sig .tc := ⟨.hbm, 4639, rfl⟩
abbrev main_v4214 : Ref sig .tc := ⟨.hbm, 4640, rfl⟩
abbrev main_v4215 : Ref sig .tc := ⟨.hbm, 4641, rfl⟩
abbrev main_v4216 : Ref sig .tc := ⟨.hbm, 4642, rfl⟩
abbrev main_v4217 : Ref sig .tc := ⟨.hbm, 4643, rfl⟩
abbrev main_v4218 : Ref sig .tc := ⟨.hbm, 4644, rfl⟩
abbrev main_v4219 : Ref sig .tc := ⟨.hbm, 4645, rfl⟩
abbrev main_v4220 : Ref sig .tc := ⟨.hbm, 4646, rfl⟩
abbrev main_cst_420 : Ref sig .tc := ⟨.hbm, 4647, rfl⟩
abbrev main_v4221 : Ref sig .tc := ⟨.hbm, 4648, rfl⟩
abbrev main_c_421 : Ref sig .tc := ⟨.hbm, 4649, rfl⟩
abbrev main_v4222 : Ref sig .tc := ⟨.hbm, 4650, rfl⟩
abbrev main_v4223 : Ref sig .tc := ⟨.hbm, 4651, rfl⟩
abbrev main_v4224 : Ref sig .tc := ⟨.hbm, 4652, rfl⟩
abbrev main_v4225 : Ref sig .tc := ⟨.hbm, 4653, rfl⟩
abbrev main_v4226 : Ref sig .tc := ⟨.hbm, 4654, rfl⟩
abbrev main_v4227 : Ref sig .tc := ⟨.hbm, 4655, rfl⟩
abbrev main_v4228 : Ref sig .tc := ⟨.hbm, 4656, rfl⟩
abbrev main_v4229 : Ref sig .tc := ⟨.hbm, 4657, rfl⟩
abbrev main_v4230 : Ref sig .tc := ⟨.hbm, 4658, rfl⟩
abbrev main_v4231 : Ref sig .tc := ⟨.hbm, 4659, rfl⟩
abbrev main_v4232 : Ref sig .tc := ⟨.hbm, 4660, rfl⟩
abbrev main_v4233 : Ref sig .tc := ⟨.hbm, 4661, rfl⟩
abbrev main_v4234 : Ref sig .tc := ⟨.hbm, 4662, rfl⟩
abbrev main_v4235 : Ref sig .tc := ⟨.hbm, 4663, rfl⟩
abbrev main_v4236 : Ref sig .tc := ⟨.hbm, 4664, rfl⟩
abbrev main_v4237 : Ref sig .tc := ⟨.hbm, 4665, rfl⟩
abbrev main_v4238 : Ref sig .tc := ⟨.hbm, 4666, rfl⟩
abbrev main_v4239 : Ref sig .tc := ⟨.hbm, 4667, rfl⟩
abbrev main_v4240 : Ref sig .tc := ⟨.hbm, 4668, rfl⟩
abbrev main_cst_422 : Ref sig .tc := ⟨.hbm, 4669, rfl⟩
abbrev main_v4241 : Ref sig .tc := ⟨.hbm, 4670, rfl⟩
abbrev main_c_423 : Ref sig .tc := ⟨.hbm, 4671, rfl⟩
abbrev main_v4242 : Ref sig .tc := ⟨.hbm, 4672, rfl⟩
abbrev main_v4243 : Ref sig .tc := ⟨.hbm, 4673, rfl⟩
abbrev main_v4244 : Ref sig .tc := ⟨.hbm, 4674, rfl⟩
abbrev main_v4245 : Ref sig .tc := ⟨.hbm, 4675, rfl⟩
abbrev main_v4246 : Ref sig .tc := ⟨.hbm, 4676, rfl⟩
abbrev main_v4247 : Ref sig .tc := ⟨.hbm, 4677, rfl⟩
abbrev main_v4248 : Ref sig .tc := ⟨.hbm, 4678, rfl⟩
abbrev main_v4249 : Ref sig .tc := ⟨.hbm, 4679, rfl⟩
abbrev main_v4250 : Ref sig .tc := ⟨.hbm, 4680, rfl⟩
abbrev main_v4251 : Ref sig .tc := ⟨.hbm, 4681, rfl⟩
abbrev main_v4252 : Ref sig .tc := ⟨.hbm, 4682, rfl⟩
abbrev main_v4253 : Ref sig .tc := ⟨.hbm, 4683, rfl⟩
abbrev main_v4254 : Ref sig .tc := ⟨.hbm, 4684, rfl⟩
abbrev main_v4255 : Ref sig .tc := ⟨.hbm, 4685, rfl⟩
abbrev main_v4256 : Ref sig .tc := ⟨.hbm, 4686, rfl⟩
abbrev main_v4257 : Ref sig .tc := ⟨.hbm, 4687, rfl⟩
abbrev main_v4258 : Ref sig .tc := ⟨.hbm, 4688, rfl⟩
abbrev main_v4259 : Ref sig .tc := ⟨.hbm, 4689, rfl⟩
abbrev main_v4260 : Ref sig .tc := ⟨.hbm, 4690, rfl⟩
abbrev main_cst_424 : Ref sig .tc := ⟨.hbm, 4691, rfl⟩
abbrev main_v4261 : Ref sig .tc := ⟨.hbm, 4692, rfl⟩
abbrev main_c_425 : Ref sig .tc := ⟨.hbm, 4693, rfl⟩
abbrev main_v4262 : Ref sig .tc := ⟨.hbm, 4694, rfl⟩
abbrev main_v4263 : Ref sig .tc := ⟨.hbm, 4695, rfl⟩
abbrev main_v4264 : Ref sig .tc := ⟨.hbm, 4696, rfl⟩
abbrev main_v4265 : Ref sig .tc := ⟨.hbm, 4697, rfl⟩
abbrev main_v4266 : Ref sig .tc := ⟨.hbm, 4698, rfl⟩
abbrev main_v4267 : Ref sig .tc := ⟨.hbm, 4699, rfl⟩
abbrev main_v4268 : Ref sig .tc := ⟨.hbm, 4700, rfl⟩
abbrev main_v4269 : Ref sig .tc := ⟨.hbm, 4701, rfl⟩
abbrev main_v4270 : Ref sig .tc := ⟨.hbm, 4702, rfl⟩
abbrev main_v4271 : Ref sig .tc := ⟨.hbm, 4703, rfl⟩
abbrev main_v4272 : Ref sig .tc := ⟨.hbm, 4704, rfl⟩
abbrev main_v4273 : Ref sig .tc := ⟨.hbm, 4705, rfl⟩
abbrev main_v4274 : Ref sig .tc := ⟨.hbm, 4706, rfl⟩
abbrev main_v4275 : Ref sig .tc := ⟨.hbm, 4707, rfl⟩
abbrev main_v4276 : Ref sig .tc := ⟨.hbm, 4708, rfl⟩
abbrev main_v4277 : Ref sig .tc := ⟨.hbm, 4709, rfl⟩
abbrev main_v4278 : Ref sig .tc := ⟨.hbm, 4710, rfl⟩
abbrev main_v4279 : Ref sig .tc := ⟨.hbm, 4711, rfl⟩
abbrev main_v4280 : Ref sig .tc := ⟨.hbm, 4712, rfl⟩
abbrev main_cst_426 : Ref sig .tc := ⟨.hbm, 4713, rfl⟩
abbrev main_v4281 : Ref sig .tc := ⟨.hbm, 4714, rfl⟩
abbrev main_c_427 : Ref sig .tc := ⟨.hbm, 4715, rfl⟩
abbrev main_v4282 : Ref sig .tc := ⟨.hbm, 4716, rfl⟩
abbrev main_v4283 : Ref sig .tc := ⟨.hbm, 4717, rfl⟩
abbrev main_v4284 : Ref sig .tc := ⟨.hbm, 4718, rfl⟩
abbrev main_v4285 : Ref sig .tc := ⟨.hbm, 4719, rfl⟩
abbrev main_v4286 : Ref sig .tc := ⟨.hbm, 4720, rfl⟩
abbrev main_v4287 : Ref sig .tc := ⟨.hbm, 4721, rfl⟩
abbrev main_v4288 : Ref sig .tc := ⟨.hbm, 4722, rfl⟩
abbrev main_v4289 : Ref sig .tc := ⟨.hbm, 4723, rfl⟩
abbrev main_v4290 : Ref sig .tc := ⟨.hbm, 4724, rfl⟩
abbrev main_v4291 : Ref sig .tc := ⟨.hbm, 4725, rfl⟩
abbrev main_v4292 : Ref sig .tc := ⟨.hbm, 4726, rfl⟩
abbrev main_v4293 : Ref sig .tc := ⟨.hbm, 4727, rfl⟩
abbrev main_v4294 : Ref sig .tc := ⟨.hbm, 4728, rfl⟩
abbrev main_v4295 : Ref sig .tc := ⟨.hbm, 4729, rfl⟩
abbrev main_v4296 : Ref sig .tc := ⟨.hbm, 4730, rfl⟩
abbrev main_v4297 : Ref sig .tc := ⟨.hbm, 4731, rfl⟩
abbrev main_v4298 : Ref sig .tc := ⟨.hbm, 4732, rfl⟩
abbrev main_v4299 : Ref sig .tc := ⟨.hbm, 4733, rfl⟩
abbrev main_v4300 : Ref sig .tc := ⟨.hbm, 4734, rfl⟩
abbrev main_cst_428 : Ref sig .tc := ⟨.hbm, 4735, rfl⟩
abbrev main_v4301 : Ref sig .tc := ⟨.hbm, 4736, rfl⟩
abbrev main_c_429 : Ref sig .tc := ⟨.hbm, 4737, rfl⟩
abbrev main_v4302 : Ref sig .tc := ⟨.hbm, 4738, rfl⟩
abbrev main_v4303 : Ref sig .tc := ⟨.hbm, 4739, rfl⟩
abbrev main_v4304 : Ref sig .tc := ⟨.hbm, 4740, rfl⟩
abbrev main_v4305 : Ref sig .tc := ⟨.hbm, 4741, rfl⟩
abbrev main_v4306 : Ref sig .tc := ⟨.hbm, 4742, rfl⟩
abbrev main_v4307 : Ref sig .tc := ⟨.hbm, 4743, rfl⟩
abbrev main_v4308 : Ref sig .tc := ⟨.hbm, 4744, rfl⟩
abbrev main_v4309 : Ref sig .tc := ⟨.hbm, 4745, rfl⟩
abbrev main_v4310 : Ref sig .tc := ⟨.hbm, 4746, rfl⟩
abbrev main_v4311 : Ref sig .tc := ⟨.hbm, 4747, rfl⟩
abbrev main_v4312 : Ref sig .tc := ⟨.hbm, 4748, rfl⟩
abbrev main_v4313 : Ref sig .tc := ⟨.hbm, 4749, rfl⟩
abbrev main_v4314 : Ref sig .tc := ⟨.hbm, 4750, rfl⟩
abbrev main_v4315 : Ref sig .tc := ⟨.hbm, 4751, rfl⟩
abbrev main_v4316 : Ref sig .tc := ⟨.hbm, 4752, rfl⟩
abbrev main_v4317 : Ref sig .tc := ⟨.hbm, 4753, rfl⟩
abbrev main_v4318 : Ref sig .tc := ⟨.hbm, 4754, rfl⟩
abbrev main_v4319 : Ref sig .tc := ⟨.hbm, 4755, rfl⟩
abbrev main_v4320 : Ref sig .tc := ⟨.hbm, 4756, rfl⟩
abbrev main_cst_430 : Ref sig .tc := ⟨.hbm, 4757, rfl⟩
abbrev main_v4321 : Ref sig .tc := ⟨.hbm, 4758, rfl⟩
abbrev main_c_431 : Ref sig .tc := ⟨.hbm, 4759, rfl⟩
abbrev main_v4322 : Ref sig .tc := ⟨.hbm, 4760, rfl⟩
abbrev main_v4323 : Ref sig .tc := ⟨.hbm, 4761, rfl⟩
abbrev main_v4324 : Ref sig .tc := ⟨.hbm, 4762, rfl⟩
abbrev main_v4325 : Ref sig .tc := ⟨.hbm, 4763, rfl⟩
abbrev main_v4326 : Ref sig .tc := ⟨.hbm, 4764, rfl⟩
abbrev main_v4327 : Ref sig .tc := ⟨.hbm, 4765, rfl⟩
abbrev main_v4328 : Ref sig .tc := ⟨.hbm, 4766, rfl⟩
abbrev main_v4329 : Ref sig .tc := ⟨.hbm, 4767, rfl⟩
abbrev main_v4330 : Ref sig .tc := ⟨.hbm, 4768, rfl⟩
abbrev main_v4331 : Ref sig .tc := ⟨.hbm, 4769, rfl⟩
abbrev main_v4332 : Ref sig .tc := ⟨.hbm, 4770, rfl⟩
abbrev main_v4333 : Ref sig .tc := ⟨.hbm, 4771, rfl⟩
abbrev main_v4334 : Ref sig .tc := ⟨.hbm, 4772, rfl⟩
abbrev main_v4335 : Ref sig .tc := ⟨.hbm, 4773, rfl⟩
abbrev main_v4336 : Ref sig .tc := ⟨.hbm, 4774, rfl⟩
abbrev main_v4337 : Ref sig .tc := ⟨.hbm, 4775, rfl⟩
abbrev main_v4338 : Ref sig .tc := ⟨.hbm, 4776, rfl⟩
abbrev main_v4339 : Ref sig .tc := ⟨.hbm, 4777, rfl⟩
abbrev main_v4340 : Ref sig .tc := ⟨.hbm, 4778, rfl⟩
abbrev main_cst_432 : Ref sig .tc := ⟨.hbm, 4779, rfl⟩
abbrev main_v4341 : Ref sig .tc := ⟨.hbm, 4780, rfl⟩
abbrev main_c_433 : Ref sig .tc := ⟨.hbm, 4781, rfl⟩
abbrev main_v4342 : Ref sig .tc := ⟨.hbm, 4782, rfl⟩
abbrev main_v4343 : Ref sig .tc := ⟨.hbm, 4783, rfl⟩
abbrev main_v4344 : Ref sig .tc := ⟨.hbm, 4784, rfl⟩
abbrev main_v4345 : Ref sig .tc := ⟨.hbm, 4785, rfl⟩
abbrev main_v4346 : Ref sig .tc := ⟨.hbm, 4786, rfl⟩
abbrev main_v4347 : Ref sig .tc := ⟨.hbm, 4787, rfl⟩
abbrev main_v4348 : Ref sig .tc := ⟨.hbm, 4788, rfl⟩
abbrev main_v4349 : Ref sig .tc := ⟨.hbm, 4789, rfl⟩
abbrev main_v4350 : Ref sig .tc := ⟨.hbm, 4790, rfl⟩
abbrev main_v4351 : Ref sig .tc := ⟨.hbm, 4791, rfl⟩
abbrev main_v4352 : Ref sig .tc := ⟨.hbm, 4792, rfl⟩
abbrev main_v4353 : Ref sig .tc := ⟨.hbm, 4793, rfl⟩
abbrev main_v4354 : Ref sig .tc := ⟨.hbm, 4794, rfl⟩
abbrev main_v4355 : Ref sig .tc := ⟨.hbm, 4795, rfl⟩
abbrev main_v4356 : Ref sig .tc := ⟨.hbm, 4796, rfl⟩
abbrev main_v4357 : Ref sig .tc := ⟨.hbm, 4797, rfl⟩
abbrev main_v4358 : Ref sig .tc := ⟨.hbm, 4798, rfl⟩
abbrev main_v4359 : Ref sig .tc := ⟨.hbm, 4799, rfl⟩
abbrev main_v4360 : Ref sig .tc := ⟨.hbm, 4800, rfl⟩
abbrev main_cst_434 : Ref sig .tc := ⟨.hbm, 4801, rfl⟩
abbrev main_v4361 : Ref sig .tc := ⟨.hbm, 4802, rfl⟩
abbrev main_c_435 : Ref sig .tc := ⟨.hbm, 4803, rfl⟩
abbrev main_v4362 : Ref sig .tc := ⟨.hbm, 4804, rfl⟩
abbrev main_v4363 : Ref sig .tc := ⟨.hbm, 4805, rfl⟩
abbrev main_v4364 : Ref sig .tc := ⟨.hbm, 4806, rfl⟩
abbrev main_v4365 : Ref sig .tc := ⟨.hbm, 4807, rfl⟩
abbrev main_v4366 : Ref sig .tc := ⟨.hbm, 4808, rfl⟩
abbrev main_v4367 : Ref sig .tc := ⟨.hbm, 4809, rfl⟩
abbrev main_v4368 : Ref sig .tc := ⟨.hbm, 4810, rfl⟩
abbrev main_v4369 : Ref sig .tc := ⟨.hbm, 4811, rfl⟩
abbrev main_v4370 : Ref sig .tc := ⟨.hbm, 4812, rfl⟩
abbrev main_v4371 : Ref sig .tc := ⟨.hbm, 4813, rfl⟩
abbrev main_v4372 : Ref sig .tc := ⟨.hbm, 4814, rfl⟩
abbrev main_v4373 : Ref sig .tc := ⟨.hbm, 4815, rfl⟩
abbrev main_v4374 : Ref sig .tc := ⟨.hbm, 4816, rfl⟩
abbrev main_v4375 : Ref sig .tc := ⟨.hbm, 4817, rfl⟩
abbrev main_v4376 : Ref sig .tc := ⟨.hbm, 4818, rfl⟩
abbrev main_v4377 : Ref sig .tc := ⟨.hbm, 4819, rfl⟩
abbrev main_v4378 : Ref sig .tc := ⟨.hbm, 4820, rfl⟩
abbrev main_v4379 : Ref sig .tc := ⟨.hbm, 4821, rfl⟩
abbrev main_v4380 : Ref sig .tc := ⟨.hbm, 4822, rfl⟩
abbrev main_cst_436 : Ref sig .tc := ⟨.hbm, 4823, rfl⟩
abbrev main_v4381 : Ref sig .tc := ⟨.hbm, 4824, rfl⟩
abbrev main_c_437 : Ref sig .tc := ⟨.hbm, 4825, rfl⟩
abbrev main_v4382 : Ref sig .tc := ⟨.hbm, 4826, rfl⟩
abbrev main_v4383 : Ref sig .tc := ⟨.hbm, 4827, rfl⟩
abbrev main_v4384 : Ref sig .tc := ⟨.hbm, 4828, rfl⟩
abbrev main_v4385 : Ref sig .tc := ⟨.hbm, 4829, rfl⟩
abbrev main_v4386 : Ref sig .tc := ⟨.hbm, 4830, rfl⟩
abbrev main_v4387 : Ref sig .tc := ⟨.hbm, 4831, rfl⟩
abbrev main_v4388 : Ref sig .tc := ⟨.hbm, 4832, rfl⟩
abbrev main_v4389 : Ref sig .tc := ⟨.hbm, 4833, rfl⟩
abbrev main_v4390 : Ref sig .tc := ⟨.hbm, 4834, rfl⟩
abbrev main_v4391 : Ref sig .tc := ⟨.hbm, 4835, rfl⟩
abbrev main_v4392 : Ref sig .tc := ⟨.hbm, 4836, rfl⟩
abbrev main_v4393 : Ref sig .tc := ⟨.hbm, 4837, rfl⟩
abbrev main_v4394 : Ref sig .tc := ⟨.hbm, 4838, rfl⟩
abbrev main_v4395 : Ref sig .tc := ⟨.hbm, 4839, rfl⟩
abbrev main_v4396 : Ref sig .tc := ⟨.hbm, 4840, rfl⟩
abbrev main_v4397 : Ref sig .tc := ⟨.hbm, 4841, rfl⟩
abbrev main_v4398 : Ref sig .tc := ⟨.hbm, 4842, rfl⟩
abbrev main_v4399 : Ref sig .tc := ⟨.hbm, 4843, rfl⟩
abbrev main_v4400 : Ref sig .tc := ⟨.hbm, 4844, rfl⟩
abbrev main_cst_438 : Ref sig .tc := ⟨.hbm, 4845, rfl⟩
abbrev main_v4401 : Ref sig .tc := ⟨.hbm, 4846, rfl⟩
abbrev main_c_439 : Ref sig .tc := ⟨.hbm, 4847, rfl⟩
abbrev main_v4402 : Ref sig .tc := ⟨.hbm, 4848, rfl⟩
abbrev main_v4403 : Ref sig .tc := ⟨.hbm, 4849, rfl⟩
abbrev main_v4404 : Ref sig .tc := ⟨.hbm, 4850, rfl⟩
abbrev main_v4405 : Ref sig .tc := ⟨.hbm, 4851, rfl⟩
abbrev main_v4406 : Ref sig .tc := ⟨.hbm, 4852, rfl⟩
abbrev main_v4407 : Ref sig .tc := ⟨.hbm, 4853, rfl⟩
abbrev main_v4408 : Ref sig .tc := ⟨.hbm, 4854, rfl⟩
abbrev main_v4409 : Ref sig .tc := ⟨.hbm, 4855, rfl⟩
abbrev main_v4410 : Ref sig .tc := ⟨.hbm, 4856, rfl⟩
abbrev main_v4411 : Ref sig .tc := ⟨.hbm, 4857, rfl⟩
abbrev main_v4412 : Ref sig .tc := ⟨.hbm, 4858, rfl⟩
abbrev main_v4413 : Ref sig .tc := ⟨.hbm, 4859, rfl⟩
abbrev main_v4414 : Ref sig .tc := ⟨.hbm, 4860, rfl⟩
abbrev main_v4415 : Ref sig .tc := ⟨.hbm, 4861, rfl⟩
abbrev main_v4416 : Ref sig .tc := ⟨.hbm, 4862, rfl⟩
abbrev main_v4417 : Ref sig .tc := ⟨.hbm, 4863, rfl⟩
abbrev main_v4418 : Ref sig .tc := ⟨.hbm, 4864, rfl⟩
abbrev main_v4419 : Ref sig .tc := ⟨.hbm, 4865, rfl⟩
abbrev main_v4420 : Ref sig .tc := ⟨.hbm, 4866, rfl⟩
abbrev main_cst_440 : Ref sig .tc := ⟨.hbm, 4867, rfl⟩
abbrev main_v4421 : Ref sig .tc := ⟨.hbm, 4868, rfl⟩
abbrev main_c_441 : Ref sig .tc := ⟨.hbm, 4869, rfl⟩
abbrev main_v4422 : Ref sig .tc := ⟨.hbm, 4870, rfl⟩
abbrev main_v4423 : Ref sig .tc := ⟨.hbm, 4871, rfl⟩
abbrev main_v4424 : Ref sig .tc := ⟨.hbm, 4872, rfl⟩
abbrev main_v4425 : Ref sig .tc := ⟨.hbm, 4873, rfl⟩
abbrev main_v4426 : Ref sig .tc := ⟨.hbm, 4874, rfl⟩
abbrev main_v4427 : Ref sig .tc := ⟨.hbm, 4875, rfl⟩
abbrev main_v4428 : Ref sig .tc := ⟨.hbm, 4876, rfl⟩
abbrev main_v4429 : Ref sig .tc := ⟨.hbm, 4877, rfl⟩
abbrev main_v4430 : Ref sig .tc := ⟨.hbm, 4878, rfl⟩
abbrev main_v4431 : Ref sig .tc := ⟨.hbm, 4879, rfl⟩
abbrev main_v4432 : Ref sig .tc := ⟨.hbm, 4880, rfl⟩
abbrev main_v4433 : Ref sig .tc := ⟨.hbm, 4881, rfl⟩
abbrev main_v4434 : Ref sig .tc := ⟨.hbm, 4882, rfl⟩
abbrev main_v4435 : Ref sig .tc := ⟨.hbm, 4883, rfl⟩
abbrev main_v4436 : Ref sig .tc := ⟨.hbm, 4884, rfl⟩
abbrev main_v4437 : Ref sig .tc := ⟨.hbm, 4885, rfl⟩
abbrev main_v4438 : Ref sig .tc := ⟨.hbm, 4886, rfl⟩
abbrev main_v4439 : Ref sig .tc := ⟨.hbm, 4887, rfl⟩
abbrev main_v4440 : Ref sig .tc := ⟨.hbm, 4888, rfl⟩
abbrev main_cst_442 : Ref sig .tc := ⟨.hbm, 4889, rfl⟩
abbrev main_v4441 : Ref sig .tc := ⟨.hbm, 4890, rfl⟩
abbrev main_c_443 : Ref sig .tc := ⟨.hbm, 4891, rfl⟩
abbrev main_v4442 : Ref sig .tc := ⟨.hbm, 4892, rfl⟩
abbrev main_v4443 : Ref sig .tc := ⟨.hbm, 4893, rfl⟩
abbrev main_v4444 : Ref sig .tc := ⟨.hbm, 4894, rfl⟩
abbrev main_v4445 : Ref sig .tc := ⟨.hbm, 4895, rfl⟩
abbrev main_v4446 : Ref sig .tc := ⟨.hbm, 4896, rfl⟩
abbrev main_v4447 : Ref sig .tc := ⟨.hbm, 4897, rfl⟩
abbrev main_v4448 : Ref sig .tc := ⟨.hbm, 4898, rfl⟩
abbrev main_v4449 : Ref sig .tc := ⟨.hbm, 4899, rfl⟩
abbrev main_v4450 : Ref sig .tc := ⟨.hbm, 4900, rfl⟩
abbrev main_v4451 : Ref sig .tc := ⟨.hbm, 4901, rfl⟩
abbrev main_v4452 : Ref sig .tc := ⟨.hbm, 4902, rfl⟩
abbrev main_v4453 : Ref sig .tc := ⟨.hbm, 4903, rfl⟩
abbrev main_v4454 : Ref sig .tc := ⟨.hbm, 4904, rfl⟩
abbrev main_v4455 : Ref sig .tc := ⟨.hbm, 4905, rfl⟩
abbrev main_v4456 : Ref sig .tc := ⟨.hbm, 4906, rfl⟩
abbrev main_v4457 : Ref sig .tc := ⟨.hbm, 4907, rfl⟩
abbrev main_v4458 : Ref sig .tc := ⟨.hbm, 4908, rfl⟩
abbrev main_v4459 : Ref sig .tc := ⟨.hbm, 4909, rfl⟩
abbrev main_v4460 : Ref sig .tc := ⟨.hbm, 4910, rfl⟩
abbrev main_cst_444 : Ref sig .tc := ⟨.hbm, 4911, rfl⟩
abbrev main_v4461 : Ref sig .tc := ⟨.hbm, 4912, rfl⟩
abbrev main_c_445 : Ref sig .tc := ⟨.hbm, 4913, rfl⟩
abbrev main_v4462 : Ref sig .tc := ⟨.hbm, 4914, rfl⟩
abbrev main_v4463 : Ref sig .tc := ⟨.hbm, 4915, rfl⟩
abbrev main_v4464 : Ref sig .tc := ⟨.hbm, 4916, rfl⟩
abbrev main_v4465 : Ref sig .tc := ⟨.hbm, 4917, rfl⟩
abbrev main_v4466 : Ref sig .tc := ⟨.hbm, 4918, rfl⟩
abbrev main_v4467 : Ref sig .tc := ⟨.hbm, 4919, rfl⟩
abbrev main_v4468 : Ref sig .tc := ⟨.hbm, 4920, rfl⟩
abbrev main_v4469 : Ref sig .tc := ⟨.hbm, 4921, rfl⟩
abbrev main_v4470 : Ref sig .tc := ⟨.hbm, 4922, rfl⟩
abbrev main_v4471 : Ref sig .tc := ⟨.hbm, 4923, rfl⟩
abbrev main_v4472 : Ref sig .tc := ⟨.hbm, 4924, rfl⟩
abbrev main_v4473 : Ref sig .tc := ⟨.hbm, 4925, rfl⟩
abbrev main_v4474 : Ref sig .tc := ⟨.hbm, 4926, rfl⟩
abbrev main_v4475 : Ref sig .tc := ⟨.hbm, 4927, rfl⟩
abbrev main_v4476 : Ref sig .tc := ⟨.hbm, 4928, rfl⟩
abbrev main_v4477 : Ref sig .tc := ⟨.hbm, 4929, rfl⟩
abbrev main_v4478 : Ref sig .tc := ⟨.hbm, 4930, rfl⟩
abbrev main_v4479 : Ref sig .tc := ⟨.hbm, 4931, rfl⟩
abbrev main_v4480 : Ref sig .tc := ⟨.hbm, 4932, rfl⟩
abbrev main_cst_446 : Ref sig .tc := ⟨.hbm, 4933, rfl⟩
abbrev main_v4481 : Ref sig .tc := ⟨.hbm, 4934, rfl⟩
abbrev main_c_447 : Ref sig .tc := ⟨.hbm, 4935, rfl⟩
abbrev main_v4482 : Ref sig .tc := ⟨.hbm, 4936, rfl⟩
abbrev main_v4483 : Ref sig .tc := ⟨.hbm, 4937, rfl⟩
abbrev main_v4484 : Ref sig .tc := ⟨.hbm, 4938, rfl⟩
abbrev main_v4485 : Ref sig .tc := ⟨.hbm, 4939, rfl⟩
abbrev main_v4486 : Ref sig .tc := ⟨.hbm, 4940, rfl⟩
abbrev main_v4487 : Ref sig .tc := ⟨.hbm, 4941, rfl⟩
abbrev main_v4488 : Ref sig .tc := ⟨.hbm, 4942, rfl⟩
abbrev main_v4489 : Ref sig .tc := ⟨.hbm, 4943, rfl⟩
abbrev main_v4490 : Ref sig .tc := ⟨.hbm, 4944, rfl⟩
abbrev main_v4491 : Ref sig .tc := ⟨.hbm, 4945, rfl⟩
abbrev main_v4492 : Ref sig .tc := ⟨.hbm, 4946, rfl⟩
abbrev main_v4493 : Ref sig .tc := ⟨.hbm, 4947, rfl⟩
abbrev main_v4494 : Ref sig .tc := ⟨.hbm, 4948, rfl⟩
abbrev main_v4495 : Ref sig .tc := ⟨.hbm, 4949, rfl⟩
abbrev main_v4496 : Ref sig .tc := ⟨.hbm, 4950, rfl⟩
abbrev main_v4497 : Ref sig .tc := ⟨.hbm, 4951, rfl⟩
abbrev main_v4498 : Ref sig .tc := ⟨.hbm, 4952, rfl⟩
abbrev main_v4499 : Ref sig .tc := ⟨.hbm, 4953, rfl⟩
abbrev main_v4500 : Ref sig .tc := ⟨.hbm, 4954, rfl⟩
abbrev main_cst_448 : Ref sig .tc := ⟨.hbm, 4955, rfl⟩
abbrev main_v4501 : Ref sig .tc := ⟨.hbm, 4956, rfl⟩
abbrev main_c_449 : Ref sig .tc := ⟨.hbm, 4957, rfl⟩
abbrev main_v4502 : Ref sig .tc := ⟨.hbm, 4958, rfl⟩
abbrev main_v4503 : Ref sig .tc := ⟨.hbm, 4959, rfl⟩
abbrev main_v4504 : Ref sig .tc := ⟨.hbm, 4960, rfl⟩
abbrev main_v4505 : Ref sig .tc := ⟨.hbm, 4961, rfl⟩
abbrev main_v4506 : Ref sig .tc := ⟨.hbm, 4962, rfl⟩
abbrev main_v4507 : Ref sig .tc := ⟨.hbm, 4963, rfl⟩
abbrev main_v4508 : Ref sig .tc := ⟨.hbm, 4964, rfl⟩
abbrev main_v4509 : Ref sig .tc := ⟨.hbm, 4965, rfl⟩
abbrev main_v4510 : Ref sig .tc := ⟨.hbm, 4966, rfl⟩
abbrev main_v4511 : Ref sig .tc := ⟨.hbm, 4967, rfl⟩
abbrev main_v4512 : Ref sig .tc := ⟨.hbm, 4968, rfl⟩
abbrev main_v4513 : Ref sig .tc := ⟨.hbm, 4969, rfl⟩
abbrev main_v4514 : Ref sig .tc := ⟨.hbm, 4970, rfl⟩
abbrev main_v4515 : Ref sig .tc := ⟨.hbm, 4971, rfl⟩
abbrev main_v4516 : Ref sig .tc := ⟨.hbm, 4972, rfl⟩
abbrev main_v4517 : Ref sig .tc := ⟨.hbm, 4973, rfl⟩
abbrev main_v4518 : Ref sig .tc := ⟨.hbm, 4974, rfl⟩
abbrev main_v4519 : Ref sig .tc := ⟨.hbm, 4975, rfl⟩
abbrev main_v4520 : Ref sig .tc := ⟨.hbm, 4976, rfl⟩
abbrev main_cst_450 : Ref sig .tc := ⟨.hbm, 4977, rfl⟩
abbrev main_v4521 : Ref sig .tc := ⟨.hbm, 4978, rfl⟩
abbrev main_c_451 : Ref sig .tc := ⟨.hbm, 4979, rfl⟩
abbrev main_v4522 : Ref sig .tc := ⟨.hbm, 4980, rfl⟩
abbrev main_v4523 : Ref sig .tc := ⟨.hbm, 4981, rfl⟩
abbrev main_v4524 : Ref sig .tc := ⟨.hbm, 4982, rfl⟩
abbrev main_v4525 : Ref sig .tc := ⟨.hbm, 4983, rfl⟩
abbrev main_v4526 : Ref sig .tc := ⟨.hbm, 4984, rfl⟩
abbrev main_v4527 : Ref sig .tc := ⟨.hbm, 4985, rfl⟩
abbrev main_v4528 : Ref sig .tc := ⟨.hbm, 4986, rfl⟩
abbrev main_v4529 : Ref sig .tc := ⟨.hbm, 4987, rfl⟩
abbrev main_v4530 : Ref sig .tc := ⟨.hbm, 4988, rfl⟩
abbrev main_v4531 : Ref sig .tc := ⟨.hbm, 4989, rfl⟩
abbrev main_v4532 : Ref sig .tc := ⟨.hbm, 4990, rfl⟩
abbrev main_v4533 : Ref sig .tc := ⟨.hbm, 4991, rfl⟩
abbrev main_v4534 : Ref sig .tc := ⟨.hbm, 4992, rfl⟩
abbrev main_v4535 : Ref sig .tc := ⟨.hbm, 4993, rfl⟩
abbrev main_v4536 : Ref sig .tc := ⟨.hbm, 4994, rfl⟩
abbrev main_v4537 : Ref sig .tc := ⟨.hbm, 4995, rfl⟩
abbrev main_v4538 : Ref sig .tc := ⟨.hbm, 4996, rfl⟩
abbrev main_v4539 : Ref sig .tc := ⟨.hbm, 4997, rfl⟩
abbrev main_v4540 : Ref sig .tc := ⟨.hbm, 4998, rfl⟩
abbrev main_cst_452 : Ref sig .tc := ⟨.hbm, 4999, rfl⟩
abbrev main_v4541 : Ref sig .tc := ⟨.hbm, 5000, rfl⟩
abbrev main_c_453 : Ref sig .tc := ⟨.hbm, 5001, rfl⟩
abbrev main_v4542 : Ref sig .tc := ⟨.hbm, 5002, rfl⟩
abbrev main_v4543 : Ref sig .tc := ⟨.hbm, 5003, rfl⟩
abbrev main_v4544 : Ref sig .tc := ⟨.hbm, 5004, rfl⟩
abbrev main_v4545 : Ref sig .tc := ⟨.hbm, 5005, rfl⟩
abbrev main_v4546 : Ref sig .tc := ⟨.hbm, 5006, rfl⟩
abbrev main_v4547 : Ref sig .tc := ⟨.hbm, 5007, rfl⟩
abbrev main_v4548 : Ref sig .tc := ⟨.hbm, 5008, rfl⟩
abbrev main_v4549 : Ref sig .tc := ⟨.hbm, 5009, rfl⟩
abbrev main_v4550 : Ref sig .tc := ⟨.hbm, 5010, rfl⟩
abbrev main_v4551 : Ref sig .tc := ⟨.hbm, 5011, rfl⟩
abbrev main_v4552 : Ref sig .tc := ⟨.hbm, 5012, rfl⟩
abbrev main_v4553 : Ref sig .tc := ⟨.hbm, 5013, rfl⟩
abbrev main_v4554 : Ref sig .tc := ⟨.hbm, 5014, rfl⟩
abbrev main_v4555 : Ref sig .tc := ⟨.hbm, 5015, rfl⟩
abbrev main_v4556 : Ref sig .tc := ⟨.hbm, 5016, rfl⟩
abbrev main_v4557 : Ref sig .tc := ⟨.hbm, 5017, rfl⟩
abbrev main_v4558 : Ref sig .tc := ⟨.hbm, 5018, rfl⟩
abbrev main_v4559 : Ref sig .tc := ⟨.hbm, 5019, rfl⟩
abbrev main_v4560 : Ref sig .tc := ⟨.hbm, 5020, rfl⟩
abbrev main_cst_454 : Ref sig .tc := ⟨.hbm, 5021, rfl⟩
abbrev main_v4561 : Ref sig .tc := ⟨.hbm, 5022, rfl⟩
abbrev main_c_455 : Ref sig .tc := ⟨.hbm, 5023, rfl⟩
abbrev main_v4562 : Ref sig .tc := ⟨.hbm, 5024, rfl⟩
abbrev main_v4563 : Ref sig .tc := ⟨.hbm, 5025, rfl⟩
abbrev main_v4564 : Ref sig .tc := ⟨.hbm, 5026, rfl⟩
abbrev main_v4565 : Ref sig .tc := ⟨.hbm, 5027, rfl⟩
abbrev main_v4566 : Ref sig .tc := ⟨.hbm, 5028, rfl⟩
abbrev main_v4567 : Ref sig .tc := ⟨.hbm, 5029, rfl⟩
abbrev main_v4568 : Ref sig .tc := ⟨.hbm, 5030, rfl⟩
abbrev main_v4569 : Ref sig .tc := ⟨.hbm, 5031, rfl⟩
abbrev main_v4570 : Ref sig .tc := ⟨.hbm, 5032, rfl⟩
abbrev main_v4571 : Ref sig .tc := ⟨.hbm, 5033, rfl⟩
abbrev main_v4572 : Ref sig .tc := ⟨.hbm, 5034, rfl⟩
abbrev main_v4573 : Ref sig .tc := ⟨.hbm, 5035, rfl⟩
abbrev main_v4574 : Ref sig .tc := ⟨.hbm, 5036, rfl⟩
abbrev main_v4575 : Ref sig .tc := ⟨.hbm, 5037, rfl⟩
abbrev main_v4576 : Ref sig .tc := ⟨.hbm, 5038, rfl⟩
abbrev main_v4577 : Ref sig .tc := ⟨.hbm, 5039, rfl⟩
abbrev main_v4578 : Ref sig .tc := ⟨.hbm, 5040, rfl⟩
abbrev main_v4579 : Ref sig .tc := ⟨.hbm, 5041, rfl⟩
abbrev main_v4580 : Ref sig .tc := ⟨.hbm, 5042, rfl⟩
abbrev main_cst_456 : Ref sig .tc := ⟨.hbm, 5043, rfl⟩
abbrev main_v4581 : Ref sig .tc := ⟨.hbm, 5044, rfl⟩
abbrev main_c_457 : Ref sig .tc := ⟨.hbm, 5045, rfl⟩
abbrev main_v4582 : Ref sig .tc := ⟨.hbm, 5046, rfl⟩
abbrev main_v4583 : Ref sig .tc := ⟨.hbm, 5047, rfl⟩
abbrev main_v4584 : Ref sig .tc := ⟨.hbm, 5048, rfl⟩
abbrev main_v4585 : Ref sig .tc := ⟨.hbm, 5049, rfl⟩
abbrev main_v4586 : Ref sig .tc := ⟨.hbm, 5050, rfl⟩
abbrev main_v4587 : Ref sig .tc := ⟨.hbm, 5051, rfl⟩
abbrev main_v4588 : Ref sig .tc := ⟨.hbm, 5052, rfl⟩
abbrev main_v4589 : Ref sig .tc := ⟨.hbm, 5053, rfl⟩
abbrev main_v4590 : Ref sig .tc := ⟨.hbm, 5054, rfl⟩
abbrev main_v4591 : Ref sig .tc := ⟨.hbm, 5055, rfl⟩
abbrev main_v4592 : Ref sig .tc := ⟨.hbm, 5056, rfl⟩
abbrev main_v4593 : Ref sig .tc := ⟨.hbm, 5057, rfl⟩
abbrev main_v4594 : Ref sig .tc := ⟨.hbm, 5058, rfl⟩
abbrev main_v4595 : Ref sig .tc := ⟨.hbm, 5059, rfl⟩
abbrev main_v4596 : Ref sig .tc := ⟨.hbm, 5060, rfl⟩
abbrev main_v4597 : Ref sig .tc := ⟨.hbm, 5061, rfl⟩
abbrev main_v4598 : Ref sig .tc := ⟨.hbm, 5062, rfl⟩
abbrev main_v4599 : Ref sig .tc := ⟨.hbm, 5063, rfl⟩
abbrev main_v4600 : Ref sig .tc := ⟨.hbm, 5064, rfl⟩
abbrev main_cst_458 : Ref sig .tc := ⟨.hbm, 5065, rfl⟩
abbrev main_v4601 : Ref sig .tc := ⟨.hbm, 5066, rfl⟩
abbrev main_c_459 : Ref sig .tc := ⟨.hbm, 5067, rfl⟩
abbrev main_v4602 : Ref sig .tc := ⟨.hbm, 5068, rfl⟩
abbrev main_v4603 : Ref sig .tc := ⟨.hbm, 5069, rfl⟩
abbrev main_v4604 : Ref sig .tc := ⟨.hbm, 5070, rfl⟩
abbrev main_v4605 : Ref sig .tc := ⟨.hbm, 5071, rfl⟩
abbrev main_v4606 : Ref sig .tc := ⟨.hbm, 5072, rfl⟩
abbrev main_v4607 : Ref sig .tc := ⟨.hbm, 5073, rfl⟩
abbrev main_v4608 : Ref sig .tc := ⟨.hbm, 5074, rfl⟩
abbrev main_v4609 : Ref sig .tc := ⟨.hbm, 5075, rfl⟩
abbrev main_v4610 : Ref sig .tc := ⟨.hbm, 5076, rfl⟩
abbrev main_v4611 : Ref sig .tc := ⟨.hbm, 5077, rfl⟩
abbrev main_v4612 : Ref sig .tc := ⟨.hbm, 5078, rfl⟩
abbrev main_v4613 : Ref sig .tc := ⟨.hbm, 5079, rfl⟩
abbrev main_v4614 : Ref sig .tc := ⟨.hbm, 5080, rfl⟩
abbrev main_v4615 : Ref sig .tc := ⟨.hbm, 5081, rfl⟩
abbrev main_v4616 : Ref sig .tc := ⟨.hbm, 5082, rfl⟩
abbrev main_v4617 : Ref sig .tc := ⟨.hbm, 5083, rfl⟩
abbrev main_v4618 : Ref sig .tc := ⟨.hbm, 5084, rfl⟩
abbrev main_v4619 : Ref sig .tc := ⟨.hbm, 5085, rfl⟩
abbrev main_v4620 : Ref sig .tc := ⟨.hbm, 5086, rfl⟩
abbrev main_cst_460 : Ref sig .tc := ⟨.hbm, 5087, rfl⟩
abbrev main_v4621 : Ref sig .tc := ⟨.hbm, 5088, rfl⟩
abbrev main_c_461 : Ref sig .tc := ⟨.hbm, 5089, rfl⟩
abbrev main_v4622 : Ref sig .tc := ⟨.hbm, 5090, rfl⟩
abbrev main_v4623 : Ref sig .tc := ⟨.hbm, 5091, rfl⟩
abbrev main_v4624 : Ref sig .tc := ⟨.hbm, 5092, rfl⟩
abbrev main_v4625 : Ref sig .tc := ⟨.hbm, 5093, rfl⟩
abbrev main_v4626 : Ref sig .tc := ⟨.hbm, 5094, rfl⟩
abbrev main_v4627 : Ref sig .tc := ⟨.hbm, 5095, rfl⟩
abbrev main_v4628 : Ref sig .tc := ⟨.hbm, 5096, rfl⟩
abbrev main_v4629 : Ref sig .tc := ⟨.hbm, 5097, rfl⟩
abbrev main_v4630 : Ref sig .tc := ⟨.hbm, 5098, rfl⟩
abbrev main_v4631 : Ref sig .tc := ⟨.hbm, 5099, rfl⟩
abbrev main_v4632 : Ref sig .tc := ⟨.hbm, 5100, rfl⟩
abbrev main_v4633 : Ref sig .tc := ⟨.hbm, 5101, rfl⟩
abbrev main_v4634 : Ref sig .tc := ⟨.hbm, 5102, rfl⟩
abbrev main_v4635 : Ref sig .tc := ⟨.hbm, 5103, rfl⟩
abbrev main_v4636 : Ref sig .tc := ⟨.hbm, 5104, rfl⟩
abbrev main_v4637 : Ref sig .tc := ⟨.hbm, 5105, rfl⟩
abbrev main_v4638 : Ref sig .tc := ⟨.hbm, 5106, rfl⟩
abbrev main_v4639 : Ref sig .tc := ⟨.hbm, 5107, rfl⟩
abbrev main_v4640 : Ref sig .tc := ⟨.hbm, 5108, rfl⟩
abbrev main_cst_462 : Ref sig .tc := ⟨.hbm, 5109, rfl⟩
abbrev main_v4641 : Ref sig .tc := ⟨.hbm, 5110, rfl⟩
abbrev main_c_463 : Ref sig .tc := ⟨.hbm, 5111, rfl⟩
abbrev main_v4642 : Ref sig .tc := ⟨.hbm, 5112, rfl⟩
abbrev main_v4643 : Ref sig .tc := ⟨.hbm, 5113, rfl⟩
abbrev main_v4644 : Ref sig .tc := ⟨.hbm, 5114, rfl⟩
abbrev main_v4645 : Ref sig .tc := ⟨.hbm, 5115, rfl⟩
abbrev main_v4646 : Ref sig .tc := ⟨.hbm, 5116, rfl⟩
abbrev main_v4647 : Ref sig .tc := ⟨.hbm, 5117, rfl⟩
abbrev main_v4648 : Ref sig .tc := ⟨.hbm, 5118, rfl⟩
abbrev main_v4649 : Ref sig .tc := ⟨.hbm, 5119, rfl⟩
abbrev main_v4650 : Ref sig .tc := ⟨.hbm, 5120, rfl⟩
abbrev main_v4651 : Ref sig .tc := ⟨.hbm, 5121, rfl⟩
abbrev main_v4652 : Ref sig .tc := ⟨.hbm, 5122, rfl⟩
abbrev main_v4653 : Ref sig .tc := ⟨.hbm, 5123, rfl⟩
abbrev main_v4654 : Ref sig .tc := ⟨.hbm, 5124, rfl⟩
abbrev main_v4655 : Ref sig .tc := ⟨.hbm, 5125, rfl⟩
abbrev main_v4656 : Ref sig .tc := ⟨.hbm, 5126, rfl⟩
abbrev main_v4657 : Ref sig .tc := ⟨.hbm, 5127, rfl⟩
abbrev main_v4658 : Ref sig .tc := ⟨.hbm, 5128, rfl⟩
abbrev main_v4659 : Ref sig .tc := ⟨.hbm, 5129, rfl⟩
abbrev main_v4660 : Ref sig .tc := ⟨.hbm, 5130, rfl⟩
abbrev main_cst_464 : Ref sig .tc := ⟨.hbm, 5131, rfl⟩
abbrev main_v4661 : Ref sig .tc := ⟨.hbm, 5132, rfl⟩
abbrev main_c_465 : Ref sig .tc := ⟨.hbm, 5133, rfl⟩
abbrev main_v4662 : Ref sig .tc := ⟨.hbm, 5134, rfl⟩
abbrev main_v4663 : Ref sig .tc := ⟨.hbm, 5135, rfl⟩
abbrev main_v4664 : Ref sig .tc := ⟨.hbm, 5136, rfl⟩
abbrev main_v4665 : Ref sig .tc := ⟨.hbm, 5137, rfl⟩
abbrev main_v4666 : Ref sig .tc := ⟨.hbm, 5138, rfl⟩
abbrev main_v4667 : Ref sig .tc := ⟨.hbm, 5139, rfl⟩
abbrev main_v4668 : Ref sig .tc := ⟨.hbm, 5140, rfl⟩
abbrev main_v4669 : Ref sig .tc := ⟨.hbm, 5141, rfl⟩
abbrev main_v4670 : Ref sig .tc := ⟨.hbm, 5142, rfl⟩
abbrev main_v4671 : Ref sig .tc := ⟨.hbm, 5143, rfl⟩
abbrev main_v4672 : Ref sig .tc := ⟨.hbm, 5144, rfl⟩
abbrev main_v4673 : Ref sig .tc := ⟨.hbm, 5145, rfl⟩
abbrev main_v4674 : Ref sig .tc := ⟨.hbm, 5146, rfl⟩
abbrev main_v4675 : Ref sig .tc := ⟨.hbm, 5147, rfl⟩
abbrev main_v4676 : Ref sig .tc := ⟨.hbm, 5148, rfl⟩
abbrev main_v4677 : Ref sig .tc := ⟨.hbm, 5149, rfl⟩
abbrev main_v4678 : Ref sig .tc := ⟨.hbm, 5150, rfl⟩
abbrev main_v4679 : Ref sig .tc := ⟨.hbm, 5151, rfl⟩
abbrev main_v4680 : Ref sig .tc := ⟨.hbm, 5152, rfl⟩
abbrev main_cst_466 : Ref sig .tc := ⟨.hbm, 5153, rfl⟩
abbrev main_v4681 : Ref sig .tc := ⟨.hbm, 5154, rfl⟩
abbrev main_c_467 : Ref sig .tc := ⟨.hbm, 5155, rfl⟩
abbrev main_v4682 : Ref sig .tc := ⟨.hbm, 5156, rfl⟩
abbrev main_v4683 : Ref sig .tc := ⟨.hbm, 5157, rfl⟩
abbrev main_v4684 : Ref sig .tc := ⟨.hbm, 5158, rfl⟩
abbrev main_v4685 : Ref sig .tc := ⟨.hbm, 5159, rfl⟩
abbrev main_v4686 : Ref sig .tc := ⟨.hbm, 5160, rfl⟩
abbrev main_v4687 : Ref sig .tc := ⟨.hbm, 5161, rfl⟩
abbrev main_v4688 : Ref sig .tc := ⟨.hbm, 5162, rfl⟩
abbrev main_v4689 : Ref sig .tc := ⟨.hbm, 5163, rfl⟩
abbrev main_v4690 : Ref sig .tc := ⟨.hbm, 5164, rfl⟩
abbrev main_v4691 : Ref sig .tc := ⟨.hbm, 5165, rfl⟩
abbrev main_v4692 : Ref sig .tc := ⟨.hbm, 5166, rfl⟩
abbrev main_v4693 : Ref sig .tc := ⟨.hbm, 5167, rfl⟩
abbrev main_v4694 : Ref sig .tc := ⟨.hbm, 5168, rfl⟩
abbrev main_v4695 : Ref sig .tc := ⟨.hbm, 5169, rfl⟩
abbrev main_v4696 : Ref sig .tc := ⟨.hbm, 5170, rfl⟩
abbrev main_v4697 : Ref sig .tc := ⟨.hbm, 5171, rfl⟩
abbrev main_v4698 : Ref sig .tc := ⟨.hbm, 5172, rfl⟩
abbrev main_v4699 : Ref sig .tc := ⟨.hbm, 5173, rfl⟩
abbrev main_v4700 : Ref sig .tc := ⟨.hbm, 5174, rfl⟩
abbrev main_cst_468 : Ref sig .tc := ⟨.hbm, 5175, rfl⟩
abbrev main_v4701 : Ref sig .tc := ⟨.hbm, 5176, rfl⟩
abbrev main_c_469 : Ref sig .tc := ⟨.hbm, 5177, rfl⟩
abbrev main_v4702 : Ref sig .tc := ⟨.hbm, 5178, rfl⟩
abbrev main_v4703 : Ref sig .tc := ⟨.hbm, 5179, rfl⟩
abbrev main_v4704 : Ref sig .tc := ⟨.hbm, 5180, rfl⟩
abbrev main_v4705 : Ref sig .tc := ⟨.hbm, 5181, rfl⟩
abbrev main_v4706 : Ref sig .tc := ⟨.hbm, 5182, rfl⟩
abbrev main_v4707 : Ref sig .tc := ⟨.hbm, 5183, rfl⟩
abbrev main_v4708 : Ref sig .tc := ⟨.hbm, 5184, rfl⟩
abbrev main_v4709 : Ref sig .tc := ⟨.hbm, 5185, rfl⟩
abbrev main_v4710 : Ref sig .tc := ⟨.hbm, 5186, rfl⟩
abbrev main_v4711 : Ref sig .tc := ⟨.hbm, 5187, rfl⟩
abbrev main_v4712 : Ref sig .tc := ⟨.hbm, 5188, rfl⟩
abbrev main_v4713 : Ref sig .tc := ⟨.hbm, 5189, rfl⟩
abbrev main_v4714 : Ref sig .tc := ⟨.hbm, 5190, rfl⟩
abbrev main_v4715 : Ref sig .tc := ⟨.hbm, 5191, rfl⟩
abbrev main_v4716 : Ref sig .tc := ⟨.hbm, 5192, rfl⟩
abbrev main_v4717 : Ref sig .tc := ⟨.hbm, 5193, rfl⟩
abbrev main_v4718 : Ref sig .tc := ⟨.hbm, 5194, rfl⟩
abbrev main_v4719 : Ref sig .tc := ⟨.hbm, 5195, rfl⟩
abbrev main_v4720 : Ref sig .tc := ⟨.hbm, 5196, rfl⟩
abbrev main_cst_470 : Ref sig .tc := ⟨.hbm, 5197, rfl⟩
abbrev main_v4721 : Ref sig .tc := ⟨.hbm, 5198, rfl⟩
abbrev main_c_471 : Ref sig .tc := ⟨.hbm, 5199, rfl⟩
abbrev main_v4722 : Ref sig .tc := ⟨.hbm, 5200, rfl⟩
abbrev main_v4723 : Ref sig .tc := ⟨.hbm, 5201, rfl⟩
abbrev main_v4724 : Ref sig .tc := ⟨.hbm, 5202, rfl⟩
abbrev main_v4725 : Ref sig .tc := ⟨.hbm, 5203, rfl⟩
abbrev main_v4726 : Ref sig .tc := ⟨.hbm, 5204, rfl⟩
abbrev main_v4727 : Ref sig .tc := ⟨.hbm, 5205, rfl⟩
abbrev main_v4728 : Ref sig .tc := ⟨.hbm, 5206, rfl⟩
abbrev main_v4729 : Ref sig .tc := ⟨.hbm, 5207, rfl⟩
abbrev main_v4730 : Ref sig .tc := ⟨.hbm, 5208, rfl⟩
abbrev main_v4731 : Ref sig .tc := ⟨.hbm, 5209, rfl⟩
abbrev main_v4732 : Ref sig .tc := ⟨.hbm, 5210, rfl⟩
abbrev main_v4733 : Ref sig .tc := ⟨.hbm, 5211, rfl⟩
abbrev main_v4734 : Ref sig .tc := ⟨.hbm, 5212, rfl⟩
abbrev main_v4735 : Ref sig .tc := ⟨.hbm, 5213, rfl⟩
abbrev main_v4736 : Ref sig .tc := ⟨.hbm, 5214, rfl⟩
abbrev main_v4737 : Ref sig .tc := ⟨.hbm, 5215, rfl⟩
abbrev main_v4738 : Ref sig .tc := ⟨.hbm, 5216, rfl⟩
abbrev main_v4739 : Ref sig .tc := ⟨.hbm, 5217, rfl⟩
abbrev main_v4740 : Ref sig .tc := ⟨.hbm, 5218, rfl⟩
abbrev main_cst_472 : Ref sig .tc := ⟨.hbm, 5219, rfl⟩
abbrev main_v4741 : Ref sig .tc := ⟨.hbm, 5220, rfl⟩
abbrev main_c_473 : Ref sig .tc := ⟨.hbm, 5221, rfl⟩
abbrev main_v4742 : Ref sig .tc := ⟨.hbm, 5222, rfl⟩
abbrev main_v4743 : Ref sig .tc := ⟨.hbm, 5223, rfl⟩
abbrev main_v4744 : Ref sig .tc := ⟨.hbm, 5224, rfl⟩
abbrev main_v4745 : Ref sig .tc := ⟨.hbm, 5225, rfl⟩
abbrev main_v4746 : Ref sig .tc := ⟨.hbm, 5226, rfl⟩
abbrev main_v4747 : Ref sig .tc := ⟨.hbm, 5227, rfl⟩
abbrev main_v4748 : Ref sig .tc := ⟨.hbm, 5228, rfl⟩
abbrev main_v4749 : Ref sig .tc := ⟨.hbm, 5229, rfl⟩
abbrev main_v4750 : Ref sig .tc := ⟨.hbm, 5230, rfl⟩
abbrev main_v4751 : Ref sig .tc := ⟨.hbm, 5231, rfl⟩
abbrev main_v4752 : Ref sig .tc := ⟨.hbm, 5232, rfl⟩
abbrev main_v4753 : Ref sig .tc := ⟨.hbm, 5233, rfl⟩
abbrev main_v4754 : Ref sig .tc := ⟨.hbm, 5234, rfl⟩
abbrev main_v4755 : Ref sig .tc := ⟨.hbm, 5235, rfl⟩
abbrev main_v4756 : Ref sig .tc := ⟨.hbm, 5236, rfl⟩
abbrev main_v4757 : Ref sig .tc := ⟨.hbm, 5237, rfl⟩
abbrev main_v4758 : Ref sig .tc := ⟨.hbm, 5238, rfl⟩
abbrev main_v4759 : Ref sig .tc := ⟨.hbm, 5239, rfl⟩
abbrev main_v4760 : Ref sig .tc := ⟨.hbm, 5240, rfl⟩
abbrev main_cst_474 : Ref sig .tc := ⟨.hbm, 5241, rfl⟩
abbrev main_v4761 : Ref sig .tc := ⟨.hbm, 5242, rfl⟩
abbrev main_c_475 : Ref sig .tc := ⟨.hbm, 5243, rfl⟩
abbrev main_v4762 : Ref sig .tc := ⟨.hbm, 5244, rfl⟩
abbrev main_v4763 : Ref sig .tc := ⟨.hbm, 5245, rfl⟩
abbrev main_v4764 : Ref sig .tc := ⟨.hbm, 5246, rfl⟩
abbrev main_v4765 : Ref sig .tc := ⟨.hbm, 5247, rfl⟩
abbrev main_v4766 : Ref sig .tc := ⟨.hbm, 5248, rfl⟩
abbrev main_v4767 : Ref sig .tc := ⟨.hbm, 5249, rfl⟩
abbrev main_v4768 : Ref sig .tc := ⟨.hbm, 5250, rfl⟩
abbrev main_v4769 : Ref sig .tc := ⟨.hbm, 5251, rfl⟩
abbrev main_v4770 : Ref sig .tc := ⟨.hbm, 5252, rfl⟩
abbrev main_v4771 : Ref sig .tc := ⟨.hbm, 5253, rfl⟩
abbrev main_v4772 : Ref sig .tc := ⟨.hbm, 5254, rfl⟩
abbrev main_v4773 : Ref sig .tc := ⟨.hbm, 5255, rfl⟩
abbrev main_v4774 : Ref sig .tc := ⟨.hbm, 5256, rfl⟩
abbrev main_v4775 : Ref sig .tc := ⟨.hbm, 5257, rfl⟩
abbrev main_v4776 : Ref sig .tc := ⟨.hbm, 5258, rfl⟩
abbrev main_v4777 : Ref sig .tc := ⟨.hbm, 5259, rfl⟩
abbrev main_v4778 : Ref sig .tc := ⟨.hbm, 5260, rfl⟩
abbrev main_v4779 : Ref sig .tc := ⟨.hbm, 5261, rfl⟩
abbrev main_v4780 : Ref sig .tc := ⟨.hbm, 5262, rfl⟩
abbrev main_cst_476 : Ref sig .tc := ⟨.hbm, 5263, rfl⟩
abbrev main_v4781 : Ref sig .tc := ⟨.hbm, 5264, rfl⟩
abbrev main_c_477 : Ref sig .tc := ⟨.hbm, 5265, rfl⟩
abbrev main_v4782 : Ref sig .tc := ⟨.hbm, 5266, rfl⟩
abbrev main_v4783 : Ref sig .tc := ⟨.hbm, 5267, rfl⟩
abbrev main_v4784 : Ref sig .tc := ⟨.hbm, 5268, rfl⟩
abbrev main_v4785 : Ref sig .tc := ⟨.hbm, 5269, rfl⟩
abbrev main_v4786 : Ref sig .tc := ⟨.hbm, 5270, rfl⟩
abbrev main_v4787 : Ref sig .tc := ⟨.hbm, 5271, rfl⟩
abbrev main_v4788 : Ref sig .tc := ⟨.hbm, 5272, rfl⟩
abbrev main_v4789 : Ref sig .tc := ⟨.hbm, 5273, rfl⟩
abbrev main_v4790 : Ref sig .tc := ⟨.hbm, 5274, rfl⟩
abbrev main_v4791 : Ref sig .tc := ⟨.hbm, 5275, rfl⟩
abbrev main_v4792 : Ref sig .tc := ⟨.hbm, 5276, rfl⟩
abbrev main_v4793 : Ref sig .tc := ⟨.hbm, 5277, rfl⟩
abbrev main_v4794 : Ref sig .tc := ⟨.hbm, 5278, rfl⟩
abbrev main_v4795 : Ref sig .tc := ⟨.hbm, 5279, rfl⟩
abbrev main_v4796 : Ref sig .tc := ⟨.hbm, 5280, rfl⟩
abbrev main_v4797 : Ref sig .tc := ⟨.hbm, 5281, rfl⟩
abbrev main_v4798 : Ref sig .tc := ⟨.hbm, 5282, rfl⟩
abbrev main_v4799 : Ref sig .tc := ⟨.hbm, 5283, rfl⟩
abbrev main_v4800 : Ref sig .tc := ⟨.hbm, 5284, rfl⟩
abbrev main_cst_478 : Ref sig .tc := ⟨.hbm, 5285, rfl⟩
abbrev main_v4801 : Ref sig .tc := ⟨.hbm, 5286, rfl⟩
abbrev main_c_479 : Ref sig .tc := ⟨.hbm, 5287, rfl⟩
abbrev main_v4802 : Ref sig .tc := ⟨.hbm, 5288, rfl⟩
abbrev main_v4803 : Ref sig .tc := ⟨.hbm, 5289, rfl⟩
abbrev main_v4804 : Ref sig .tc := ⟨.hbm, 5290, rfl⟩
abbrev main_v4805 : Ref sig .tc := ⟨.hbm, 5291, rfl⟩
abbrev main_v4806 : Ref sig .tc := ⟨.hbm, 5292, rfl⟩
abbrev main_v4807 : Ref sig .tc := ⟨.hbm, 5293, rfl⟩
abbrev main_v4808 : Ref sig .tc := ⟨.hbm, 5294, rfl⟩
abbrev main_v4809 : Ref sig .tc := ⟨.hbm, 5295, rfl⟩
abbrev main_v4810 : Ref sig .tc := ⟨.hbm, 5296, rfl⟩
abbrev main_v4811 : Ref sig .tc := ⟨.hbm, 5297, rfl⟩
abbrev main_v4812 : Ref sig .tc := ⟨.hbm, 5298, rfl⟩
abbrev main_v4813 : Ref sig .tc := ⟨.hbm, 5299, rfl⟩
abbrev main_v4814 : Ref sig .tc := ⟨.hbm, 5300, rfl⟩
abbrev main_v4815 : Ref sig .tc := ⟨.hbm, 5301, rfl⟩
abbrev main_v4816 : Ref sig .tc := ⟨.hbm, 5302, rfl⟩
abbrev main_v4817 : Ref sig .tc := ⟨.hbm, 5303, rfl⟩
abbrev main_v4818 : Ref sig .tc := ⟨.hbm, 5304, rfl⟩
abbrev main_v4819 : Ref sig .tc := ⟨.hbm, 5305, rfl⟩
abbrev main_v4820 : Ref sig .tc := ⟨.hbm, 5306, rfl⟩
abbrev main_cst_480 : Ref sig .tc := ⟨.hbm, 5307, rfl⟩
abbrev main_v4821 : Ref sig .tc := ⟨.hbm, 5308, rfl⟩
abbrev main_c_481 : Ref sig .tc := ⟨.hbm, 5309, rfl⟩
abbrev main_v4822 : Ref sig .tc := ⟨.hbm, 5310, rfl⟩
abbrev main_v4823 : Ref sig .tc := ⟨.hbm, 5311, rfl⟩
abbrev main_v4824 : Ref sig .tc := ⟨.hbm, 5312, rfl⟩
abbrev main_v4825 : Ref sig .tc := ⟨.hbm, 5313, rfl⟩
abbrev main_v4826 : Ref sig .tc := ⟨.hbm, 5314, rfl⟩
abbrev main_v4827 : Ref sig .tc := ⟨.hbm, 5315, rfl⟩
abbrev main_v4828 : Ref sig .tc := ⟨.hbm, 5316, rfl⟩
abbrev main_v4829 : Ref sig .tc := ⟨.hbm, 5317, rfl⟩
abbrev main_v4830 : Ref sig .tc := ⟨.hbm, 5318, rfl⟩
abbrev main_v4831 : Ref sig .tc := ⟨.hbm, 5319, rfl⟩
abbrev main_v4832 : Ref sig .tc := ⟨.hbm, 5320, rfl⟩
abbrev main_v4833 : Ref sig .tc := ⟨.hbm, 5321, rfl⟩
abbrev main_v4834 : Ref sig .tc := ⟨.hbm, 5322, rfl⟩
abbrev main_v4835 : Ref sig .tc := ⟨.hbm, 5323, rfl⟩
abbrev main_v4836 : Ref sig .tc := ⟨.hbm, 5324, rfl⟩
abbrev main_v4837 : Ref sig .tc := ⟨.hbm, 5325, rfl⟩
abbrev main_v4838 : Ref sig .tc := ⟨.hbm, 5326, rfl⟩
abbrev main_v4839 : Ref sig .tc := ⟨.hbm, 5327, rfl⟩
abbrev main_v4840 : Ref sig .tc := ⟨.hbm, 5328, rfl⟩
abbrev main_cst_482 : Ref sig .tc := ⟨.hbm, 5329, rfl⟩
abbrev main_v4841 : Ref sig .tc := ⟨.hbm, 5330, rfl⟩
abbrev main_c_483 : Ref sig .tc := ⟨.hbm, 5331, rfl⟩
abbrev main_v4842 : Ref sig .tc := ⟨.hbm, 5332, rfl⟩
abbrev main_v4843 : Ref sig .tc := ⟨.hbm, 5333, rfl⟩
abbrev main_v4844 : Ref sig .tc := ⟨.hbm, 5334, rfl⟩
abbrev main_v4845 : Ref sig .tc := ⟨.hbm, 5335, rfl⟩
abbrev main_v4846 : Ref sig .tc := ⟨.hbm, 5336, rfl⟩
abbrev main_v4847 : Ref sig .tc := ⟨.hbm, 5337, rfl⟩
abbrev main_v4848 : Ref sig .tc := ⟨.hbm, 5338, rfl⟩
abbrev main_v4849 : Ref sig .tc := ⟨.hbm, 5339, rfl⟩
abbrev main_v4850 : Ref sig .tc := ⟨.hbm, 5340, rfl⟩
abbrev main_v4851 : Ref sig .tc := ⟨.hbm, 5341, rfl⟩
abbrev main_v4852 : Ref sig .tc := ⟨.hbm, 5342, rfl⟩
abbrev main_v4853 : Ref sig .tc := ⟨.hbm, 5343, rfl⟩
abbrev main_v4854 : Ref sig .tc := ⟨.hbm, 5344, rfl⟩
abbrev main_v4855 : Ref sig .tc := ⟨.hbm, 5345, rfl⟩
abbrev main_v4856 : Ref sig .tc := ⟨.hbm, 5346, rfl⟩
abbrev main_v4857 : Ref sig .tc := ⟨.hbm, 5347, rfl⟩
abbrev main_v4858 : Ref sig .tc := ⟨.hbm, 5348, rfl⟩
abbrev main_v4859 : Ref sig .tc := ⟨.hbm, 5349, rfl⟩
abbrev main_v4860 : Ref sig .tc := ⟨.hbm, 5350, rfl⟩
abbrev main_cst_484 : Ref sig .tc := ⟨.hbm, 5351, rfl⟩
abbrev main_v4861 : Ref sig .tc := ⟨.hbm, 5352, rfl⟩
abbrev main_c_485 : Ref sig .tc := ⟨.hbm, 5353, rfl⟩
abbrev main_v4862 : Ref sig .tc := ⟨.hbm, 5354, rfl⟩
abbrev main_v4863 : Ref sig .tc := ⟨.hbm, 5355, rfl⟩
abbrev main_v4864 : Ref sig .tc := ⟨.hbm, 5356, rfl⟩
abbrev main_v4865 : Ref sig .tc := ⟨.hbm, 5357, rfl⟩
abbrev main_v4866 : Ref sig .tc := ⟨.hbm, 5358, rfl⟩
abbrev main_v4867 : Ref sig .tc := ⟨.hbm, 5359, rfl⟩
abbrev main_v4868 : Ref sig .tc := ⟨.hbm, 5360, rfl⟩
abbrev main_v4869 : Ref sig .tc := ⟨.hbm, 5361, rfl⟩
abbrev main_v4870 : Ref sig .tc := ⟨.hbm, 5362, rfl⟩
abbrev main_v4871 : Ref sig .tc := ⟨.hbm, 5363, rfl⟩
abbrev main_v4872 : Ref sig .tc := ⟨.hbm, 5364, rfl⟩
abbrev main_v4873 : Ref sig .tc := ⟨.hbm, 5365, rfl⟩
abbrev main_v4874 : Ref sig .tc := ⟨.hbm, 5366, rfl⟩
abbrev main_v4875 : Ref sig .tc := ⟨.hbm, 5367, rfl⟩
abbrev main_v4876 : Ref sig .tc := ⟨.hbm, 5368, rfl⟩
abbrev main_v4877 : Ref sig .tc := ⟨.hbm, 5369, rfl⟩
abbrev main_v4878 : Ref sig .tc := ⟨.hbm, 5370, rfl⟩
abbrev main_v4879 : Ref sig .tc := ⟨.hbm, 5371, rfl⟩
abbrev main_v4880 : Ref sig .tc := ⟨.hbm, 5372, rfl⟩
abbrev main_cst_486 : Ref sig .tc := ⟨.hbm, 5373, rfl⟩
abbrev main_v4881 : Ref sig .tc := ⟨.hbm, 5374, rfl⟩
abbrev main_c_487 : Ref sig .tc := ⟨.hbm, 5375, rfl⟩
abbrev main_v4882 : Ref sig .tc := ⟨.hbm, 5376, rfl⟩
abbrev main_v4883 : Ref sig .tc := ⟨.hbm, 5377, rfl⟩
abbrev main_v4884 : Ref sig .tc := ⟨.hbm, 5378, rfl⟩
abbrev main_v4885 : Ref sig .tc := ⟨.hbm, 5379, rfl⟩
abbrev main_v4886 : Ref sig .tc := ⟨.hbm, 5380, rfl⟩
abbrev main_v4887 : Ref sig .tc := ⟨.hbm, 5381, rfl⟩
abbrev main_v4888 : Ref sig .tc := ⟨.hbm, 5382, rfl⟩
abbrev main_v4889 : Ref sig .tc := ⟨.hbm, 5383, rfl⟩
abbrev main_v4890 : Ref sig .tc := ⟨.hbm, 5384, rfl⟩
abbrev main_v4891 : Ref sig .tc := ⟨.hbm, 5385, rfl⟩
abbrev main_v4892 : Ref sig .tc := ⟨.hbm, 5386, rfl⟩
abbrev main_v4893 : Ref sig .tc := ⟨.hbm, 5387, rfl⟩
abbrev main_v4894 : Ref sig .tc := ⟨.hbm, 5388, rfl⟩
abbrev main_v4895 : Ref sig .tc := ⟨.hbm, 5389, rfl⟩
abbrev main_v4896 : Ref sig .tc := ⟨.hbm, 5390, rfl⟩
abbrev main_v4897 : Ref sig .tc := ⟨.hbm, 5391, rfl⟩
abbrev main_v4898 : Ref sig .tc := ⟨.hbm, 5392, rfl⟩
abbrev main_v4899 : Ref sig .tc := ⟨.hbm, 5393, rfl⟩
abbrev main_v4900 : Ref sig .tc := ⟨.hbm, 5394, rfl⟩
abbrev main_cst_488 : Ref sig .tc := ⟨.hbm, 5395, rfl⟩
abbrev main_v4901 : Ref sig .tc := ⟨.hbm, 5396, rfl⟩
abbrev main_c_489 : Ref sig .tc := ⟨.hbm, 5397, rfl⟩
abbrev main_v4902 : Ref sig .tc := ⟨.hbm, 5398, rfl⟩
abbrev main_v4903 : Ref sig .tc := ⟨.hbm, 5399, rfl⟩
abbrev main_v4904 : Ref sig .tc := ⟨.hbm, 5400, rfl⟩
abbrev main_v4905 : Ref sig .tc := ⟨.hbm, 5401, rfl⟩
abbrev main_v4906 : Ref sig .tc := ⟨.hbm, 5402, rfl⟩
abbrev main_v4907 : Ref sig .tc := ⟨.hbm, 5403, rfl⟩
abbrev main_v4908 : Ref sig .tc := ⟨.hbm, 5404, rfl⟩
abbrev main_v4909 : Ref sig .tc := ⟨.hbm, 5405, rfl⟩
abbrev main_v4910 : Ref sig .tc := ⟨.hbm, 5406, rfl⟩
abbrev main_v4911 : Ref sig .tc := ⟨.hbm, 5407, rfl⟩
abbrev main_v4912 : Ref sig .tc := ⟨.hbm, 5408, rfl⟩
abbrev main_v4913 : Ref sig .tc := ⟨.hbm, 5409, rfl⟩
abbrev main_v4914 : Ref sig .tc := ⟨.hbm, 5410, rfl⟩
abbrev main_v4915 : Ref sig .tc := ⟨.hbm, 5411, rfl⟩
abbrev main_v4916 : Ref sig .tc := ⟨.hbm, 5412, rfl⟩
abbrev main_v4917 : Ref sig .tc := ⟨.hbm, 5413, rfl⟩
abbrev main_v4918 : Ref sig .tc := ⟨.hbm, 5414, rfl⟩
abbrev main_v4919 : Ref sig .tc := ⟨.hbm, 5415, rfl⟩
abbrev main_v4920 : Ref sig .tc := ⟨.hbm, 5416, rfl⟩
abbrev main_cst_490 : Ref sig .tc := ⟨.hbm, 5417, rfl⟩
abbrev main_v4921 : Ref sig .tc := ⟨.hbm, 5418, rfl⟩
abbrev main_c_491 : Ref sig .tc := ⟨.hbm, 5419, rfl⟩
abbrev main_v4922 : Ref sig .tc := ⟨.hbm, 5420, rfl⟩
abbrev main_v4923 : Ref sig .tc := ⟨.hbm, 5421, rfl⟩
abbrev main_v4924 : Ref sig .tc := ⟨.hbm, 5422, rfl⟩
abbrev main_v4925 : Ref sig .tc := ⟨.hbm, 5423, rfl⟩
abbrev main_v4926 : Ref sig .tc := ⟨.hbm, 5424, rfl⟩
abbrev main_v4927 : Ref sig .tc := ⟨.hbm, 5425, rfl⟩
abbrev main_v4928 : Ref sig .tc := ⟨.hbm, 5426, rfl⟩
abbrev main_v4929 : Ref sig .tc := ⟨.hbm, 5427, rfl⟩
abbrev main_v4930 : Ref sig .tc := ⟨.hbm, 5428, rfl⟩
abbrev main_v4931 : Ref sig .tc := ⟨.hbm, 5429, rfl⟩
abbrev main_v4932 : Ref sig .tc := ⟨.hbm, 5430, rfl⟩
abbrev main_v4933 : Ref sig .tc := ⟨.hbm, 5431, rfl⟩
abbrev main_v4934 : Ref sig .tc := ⟨.hbm, 5432, rfl⟩
abbrev main_v4935 : Ref sig .tc := ⟨.hbm, 5433, rfl⟩
abbrev main_v4936 : Ref sig .tc := ⟨.hbm, 5434, rfl⟩
abbrev main_v4937 : Ref sig .tc := ⟨.hbm, 5435, rfl⟩
abbrev main_v4938 : Ref sig .tc := ⟨.hbm, 5436, rfl⟩
abbrev main_v4939 : Ref sig .tc := ⟨.hbm, 5437, rfl⟩
abbrev main_v4940 : Ref sig .tc := ⟨.hbm, 5438, rfl⟩
abbrev main_cst_492 : Ref sig .tc := ⟨.hbm, 5439, rfl⟩
abbrev main_v4941 : Ref sig .tc := ⟨.hbm, 5440, rfl⟩
abbrev main_c_493 : Ref sig .tc := ⟨.hbm, 5441, rfl⟩
abbrev main_v4942 : Ref sig .tc := ⟨.hbm, 5442, rfl⟩
abbrev main_v4943 : Ref sig .tc := ⟨.hbm, 5443, rfl⟩
abbrev main_v4944 : Ref sig .tc := ⟨.hbm, 5444, rfl⟩
abbrev main_v4945 : Ref sig .tc := ⟨.hbm, 5445, rfl⟩
abbrev main_v4946 : Ref sig .tc := ⟨.hbm, 5446, rfl⟩
abbrev main_v4947 : Ref sig .tc := ⟨.hbm, 5447, rfl⟩
abbrev main_v4948 : Ref sig .tc := ⟨.hbm, 5448, rfl⟩
abbrev main_v4949 : Ref sig .tc := ⟨.hbm, 5449, rfl⟩
abbrev main_v4950 : Ref sig .tc := ⟨.hbm, 5450, rfl⟩
abbrev main_v4951 : Ref sig .tc := ⟨.hbm, 5451, rfl⟩
abbrev main_v4952 : Ref sig .tc := ⟨.hbm, 5452, rfl⟩
abbrev main_v4953 : Ref sig .tc := ⟨.hbm, 5453, rfl⟩
abbrev main_v4954 : Ref sig .tc := ⟨.hbm, 5454, rfl⟩
abbrev main_v4955 : Ref sig .tc := ⟨.hbm, 5455, rfl⟩
abbrev main_v4956 : Ref sig .tc := ⟨.hbm, 5456, rfl⟩
abbrev main_v4957 : Ref sig .tc := ⟨.hbm, 5457, rfl⟩
abbrev main_v4958 : Ref sig .tc := ⟨.hbm, 5458, rfl⟩
abbrev main_v4959 : Ref sig .tc := ⟨.hbm, 5459, rfl⟩
abbrev main_v4960 : Ref sig .tc := ⟨.hbm, 5460, rfl⟩
abbrev main_cst_494 : Ref sig .tc := ⟨.hbm, 5461, rfl⟩
abbrev main_v4961 : Ref sig .tc := ⟨.hbm, 5462, rfl⟩
abbrev main_c_495 : Ref sig .tc := ⟨.hbm, 5463, rfl⟩
abbrev main_v4962 : Ref sig .tc := ⟨.hbm, 5464, rfl⟩
abbrev main_v4963 : Ref sig .tc := ⟨.hbm, 5465, rfl⟩
abbrev main_v4964 : Ref sig .tc := ⟨.hbm, 5466, rfl⟩
abbrev main_v4965 : Ref sig .tc := ⟨.hbm, 5467, rfl⟩
abbrev main_v4966 : Ref sig .tc := ⟨.hbm, 5468, rfl⟩
abbrev main_v4967 : Ref sig .tc := ⟨.hbm, 5469, rfl⟩
abbrev main_v4968 : Ref sig .tc := ⟨.hbm, 5470, rfl⟩
abbrev main_v4969 : Ref sig .tc := ⟨.hbm, 5471, rfl⟩
abbrev main_v4970 : Ref sig .tc := ⟨.hbm, 5472, rfl⟩
abbrev main_v4971 : Ref sig .tc := ⟨.hbm, 5473, rfl⟩
abbrev main_v4972 : Ref sig .tc := ⟨.hbm, 5474, rfl⟩
abbrev main_v4973 : Ref sig .tc := ⟨.hbm, 5475, rfl⟩
abbrev main_v4974 : Ref sig .tc := ⟨.hbm, 5476, rfl⟩
abbrev main_v4975 : Ref sig .tc := ⟨.hbm, 5477, rfl⟩
abbrev main_v4976 : Ref sig .tc := ⟨.hbm, 5478, rfl⟩
abbrev main_v4977 : Ref sig .tc := ⟨.hbm, 5479, rfl⟩
abbrev main_v4978 : Ref sig .tc := ⟨.hbm, 5480, rfl⟩
abbrev main_v4979 : Ref sig .tc := ⟨.hbm, 5481, rfl⟩
abbrev main_v4980 : Ref sig .tc := ⟨.hbm, 5482, rfl⟩
abbrev main_cst_496 : Ref sig .tc := ⟨.hbm, 5483, rfl⟩
abbrev main_v4981 : Ref sig .tc := ⟨.hbm, 5484, rfl⟩
abbrev main_c_497 : Ref sig .tc := ⟨.hbm, 5485, rfl⟩
abbrev main_v4982 : Ref sig .tc := ⟨.hbm, 5486, rfl⟩
abbrev main_v4983 : Ref sig .tc := ⟨.hbm, 5487, rfl⟩
abbrev main_v4984 : Ref sig .tc := ⟨.hbm, 5488, rfl⟩
abbrev main_v4985 : Ref sig .tc := ⟨.hbm, 5489, rfl⟩
abbrev main_v4986 : Ref sig .tc := ⟨.hbm, 5490, rfl⟩
abbrev main_v4987 : Ref sig .tc := ⟨.hbm, 5491, rfl⟩
abbrev main_v4988 : Ref sig .tc := ⟨.hbm, 5492, rfl⟩
abbrev main_v4989 : Ref sig .tc := ⟨.hbm, 5493, rfl⟩
abbrev main_v4990 : Ref sig .tc := ⟨.hbm, 5494, rfl⟩
abbrev main_v4991 : Ref sig .tc := ⟨.hbm, 5495, rfl⟩
abbrev main_v4992 : Ref sig .tc := ⟨.hbm, 5496, rfl⟩
abbrev main_v4993 : Ref sig .tc := ⟨.hbm, 5497, rfl⟩
abbrev main_v4994 : Ref sig .tc := ⟨.hbm, 5498, rfl⟩
abbrev main_v4995 : Ref sig .tc := ⟨.hbm, 5499, rfl⟩
abbrev main_v4996 : Ref sig .tc := ⟨.hbm, 5500, rfl⟩
abbrev main_v4997 : Ref sig .tc := ⟨.hbm, 5501, rfl⟩
abbrev main_v4998 : Ref sig .tc := ⟨.hbm, 5502, rfl⟩
abbrev main_v4999 : Ref sig .tc := ⟨.hbm, 5503, rfl⟩
abbrev main_v5000 : Ref sig .tc := ⟨.hbm, 5504, rfl⟩
abbrev main_cst_498 : Ref sig .tc := ⟨.hbm, 5505, rfl⟩
abbrev main_v5001 : Ref sig .tc := ⟨.hbm, 5506, rfl⟩
abbrev main_c_499 : Ref sig .tc := ⟨.hbm, 5507, rfl⟩
abbrev main_v5002 : Ref sig .tc := ⟨.hbm, 5508, rfl⟩
abbrev main_v5003 : Ref sig .tc := ⟨.hbm, 5509, rfl⟩
abbrev main_v5004 : Ref sig .tc := ⟨.hbm, 5510, rfl⟩
abbrev main_v5005 : Ref sig .tc := ⟨.hbm, 5511, rfl⟩
abbrev main_v5006 : Ref sig .tc := ⟨.hbm, 5512, rfl⟩
abbrev main_v5007 : Ref sig .tc := ⟨.hbm, 5513, rfl⟩
abbrev main_v5008 : Ref sig .tc := ⟨.hbm, 5514, rfl⟩
abbrev main_v5009 : Ref sig .tc := ⟨.hbm, 5515, rfl⟩
abbrev main_v5010 : Ref sig .tc := ⟨.hbm, 5516, rfl⟩
abbrev main_v5011 : Ref sig .tc := ⟨.hbm, 5517, rfl⟩
abbrev main_v5012 : Ref sig .tc := ⟨.hbm, 5518, rfl⟩
abbrev main_v5013 : Ref sig .tc := ⟨.hbm, 5519, rfl⟩
abbrev main_v5014 : Ref sig .tc := ⟨.hbm, 5520, rfl⟩
abbrev main_v5015 : Ref sig .tc := ⟨.hbm, 5521, rfl⟩
abbrev main_v5016 : Ref sig .tc := ⟨.hbm, 5522, rfl⟩
abbrev main_v5017 : Ref sig .tc := ⟨.hbm, 5523, rfl⟩
abbrev main_v5018 : Ref sig .tc := ⟨.hbm, 5524, rfl⟩
abbrev main_v5019 : Ref sig .tc := ⟨.hbm, 5525, rfl⟩
abbrev main_v5020 : Ref sig .tc := ⟨.hbm, 5526, rfl⟩
abbrev main_cst_500 : Ref sig .tc := ⟨.hbm, 5527, rfl⟩
abbrev main_v5021 : Ref sig .tc := ⟨.hbm, 5528, rfl⟩
abbrev main_c_501 : Ref sig .tc := ⟨.hbm, 5529, rfl⟩
abbrev main_v5022 : Ref sig .tc := ⟨.hbm, 5530, rfl⟩
abbrev main_v5023 : Ref sig .tc := ⟨.hbm, 5531, rfl⟩
abbrev main_v5024 : Ref sig .tc := ⟨.hbm, 5532, rfl⟩
abbrev main_v5025 : Ref sig .tc := ⟨.hbm, 5533, rfl⟩
abbrev main_v5026 : Ref sig .tc := ⟨.hbm, 5534, rfl⟩
abbrev main_v5027 : Ref sig .tc := ⟨.hbm, 5535, rfl⟩
abbrev main_v5028 : Ref sig .tc := ⟨.hbm, 5536, rfl⟩
abbrev main_v5029 : Ref sig .tc := ⟨.hbm, 5537, rfl⟩
abbrev main_v5030 : Ref sig .tc := ⟨.hbm, 5538, rfl⟩
abbrev main_v5031 : Ref sig .tc := ⟨.hbm, 5539, rfl⟩
abbrev main_v5032 : Ref sig .tc := ⟨.hbm, 5540, rfl⟩
abbrev main_v5033 : Ref sig .tc := ⟨.hbm, 5541, rfl⟩
abbrev main_v5034 : Ref sig .tc := ⟨.hbm, 5542, rfl⟩
abbrev main_v5035 : Ref sig .tc := ⟨.hbm, 5543, rfl⟩
abbrev main_v5036 : Ref sig .tc := ⟨.hbm, 5544, rfl⟩
abbrev main_v5037 : Ref sig .tc := ⟨.hbm, 5545, rfl⟩
abbrev main_v5038 : Ref sig .tc := ⟨.hbm, 5546, rfl⟩
abbrev main_v5039 : Ref sig .tc := ⟨.hbm, 5547, rfl⟩
abbrev main_v5040 : Ref sig .tc := ⟨.hbm, 5548, rfl⟩
abbrev main_cst_502 : Ref sig .tc := ⟨.hbm, 5549, rfl⟩
abbrev main_v5041 : Ref sig .tc := ⟨.hbm, 5550, rfl⟩
abbrev main_c_503 : Ref sig .tc := ⟨.hbm, 5551, rfl⟩
abbrev main_v5042 : Ref sig .tc := ⟨.hbm, 5552, rfl⟩
abbrev main_v5043 : Ref sig .tc := ⟨.hbm, 5553, rfl⟩
abbrev main_v5044 : Ref sig .tc := ⟨.hbm, 5554, rfl⟩
abbrev main_v5045 : Ref sig .tc := ⟨.hbm, 5555, rfl⟩
abbrev main_v5046 : Ref sig .tc := ⟨.hbm, 5556, rfl⟩
abbrev main_v5047 : Ref sig .tc := ⟨.hbm, 5557, rfl⟩
abbrev main_v5048 : Ref sig .tc := ⟨.hbm, 5558, rfl⟩
abbrev main_v5049 : Ref sig .tc := ⟨.hbm, 5559, rfl⟩
abbrev main_v5050 : Ref sig .tc := ⟨.hbm, 5560, rfl⟩
abbrev main_v5051 : Ref sig .tc := ⟨.hbm, 5561, rfl⟩
abbrev main_v5052 : Ref sig .tc := ⟨.hbm, 5562, rfl⟩
abbrev main_v5053 : Ref sig .tc := ⟨.hbm, 5563, rfl⟩
abbrev main_v5054 : Ref sig .tc := ⟨.hbm, 5564, rfl⟩
abbrev main_v5055 : Ref sig .tc := ⟨.hbm, 5565, rfl⟩
abbrev main_v5056 : Ref sig .tc := ⟨.hbm, 5566, rfl⟩
abbrev main_v5057 : Ref sig .tc := ⟨.hbm, 5567, rfl⟩
abbrev main_v5058 : Ref sig .tc := ⟨.hbm, 5568, rfl⟩
abbrev main_v5059 : Ref sig .tc := ⟨.hbm, 5569, rfl⟩
abbrev main_v5060 : Ref sig .tc := ⟨.hbm, 5570, rfl⟩
abbrev main_cst_504 : Ref sig .tc := ⟨.hbm, 5571, rfl⟩
abbrev main_v5061 : Ref sig .tc := ⟨.hbm, 5572, rfl⟩
abbrev main_c_505 : Ref sig .tc := ⟨.hbm, 5573, rfl⟩
abbrev main_v5062 : Ref sig .tc := ⟨.hbm, 5574, rfl⟩
abbrev main_v5063 : Ref sig .tc := ⟨.hbm, 5575, rfl⟩
abbrev main_v5064 : Ref sig .tc := ⟨.hbm, 5576, rfl⟩
abbrev main_v5065 : Ref sig .tc := ⟨.hbm, 5577, rfl⟩
abbrev main_v5066 : Ref sig .tc := ⟨.hbm, 5578, rfl⟩
abbrev main_v5067 : Ref sig .tc := ⟨.hbm, 5579, rfl⟩
abbrev main_v5068 : Ref sig .tc := ⟨.hbm, 5580, rfl⟩
abbrev main_v5069 : Ref sig .tc := ⟨.hbm, 5581, rfl⟩
abbrev main_v5070 : Ref sig .tc := ⟨.hbm, 5582, rfl⟩
abbrev main_v5071 : Ref sig .tc := ⟨.hbm, 5583, rfl⟩
abbrev main_v5072 : Ref sig .tc := ⟨.hbm, 5584, rfl⟩
abbrev main_v5073 : Ref sig .tc := ⟨.hbm, 5585, rfl⟩
abbrev main_v5074 : Ref sig .tc := ⟨.hbm, 5586, rfl⟩
abbrev main_v5075 : Ref sig .tc := ⟨.hbm, 5587, rfl⟩
abbrev main_v5076 : Ref sig .tc := ⟨.hbm, 5588, rfl⟩
abbrev main_v5077 : Ref sig .tc := ⟨.hbm, 5589, rfl⟩
abbrev main_v5078 : Ref sig .tc := ⟨.hbm, 5590, rfl⟩
abbrev main_v5079 : Ref sig .tc := ⟨.hbm, 5591, rfl⟩
abbrev main_v5080 : Ref sig .tc := ⟨.hbm, 5592, rfl⟩
abbrev main_cst_506 : Ref sig .tc := ⟨.hbm, 5593, rfl⟩
abbrev main_v5081 : Ref sig .tc := ⟨.hbm, 5594, rfl⟩
abbrev main_c_507 : Ref sig .tc := ⟨.hbm, 5595, rfl⟩
abbrev main_v5082 : Ref sig .tc := ⟨.hbm, 5596, rfl⟩
abbrev main_v5083 : Ref sig .tc := ⟨.hbm, 5597, rfl⟩
abbrev main_v5084 : Ref sig .tc := ⟨.hbm, 5598, rfl⟩
abbrev main_v5085 : Ref sig .tc := ⟨.hbm, 5599, rfl⟩
abbrev main_v5086 : Ref sig .tc := ⟨.hbm, 5600, rfl⟩
abbrev main_v5087 : Ref sig .tc := ⟨.hbm, 5601, rfl⟩
abbrev main_v5088 : Ref sig .tc := ⟨.hbm, 5602, rfl⟩
abbrev main_v5089 : Ref sig .tc := ⟨.hbm, 5603, rfl⟩
abbrev main_v5090 : Ref sig .tc := ⟨.hbm, 5604, rfl⟩
abbrev main_v5091 : Ref sig .tc := ⟨.hbm, 5605, rfl⟩
abbrev main_v5092 : Ref sig .tc := ⟨.hbm, 5606, rfl⟩
abbrev main_v5093 : Ref sig .tc := ⟨.hbm, 5607, rfl⟩
abbrev main_v5094 : Ref sig .tc := ⟨.hbm, 5608, rfl⟩
abbrev main_v5095 : Ref sig .tc := ⟨.hbm, 5609, rfl⟩
abbrev main_v5096 : Ref sig .tc := ⟨.hbm, 5610, rfl⟩
abbrev main_v5097 : Ref sig .tc := ⟨.hbm, 5611, rfl⟩
abbrev main_v5098 : Ref sig .tc := ⟨.hbm, 5612, rfl⟩
abbrev main_v5099 : Ref sig .tc := ⟨.hbm, 5613, rfl⟩
abbrev main_v5100 : Ref sig .tc := ⟨.hbm, 5614, rfl⟩
abbrev main_cst_508 : Ref sig .tc := ⟨.hbm, 5615, rfl⟩
abbrev main_v5101 : Ref sig .tc := ⟨.hbm, 5616, rfl⟩
abbrev main_c_509 : Ref sig .tc := ⟨.hbm, 5617, rfl⟩
abbrev main_v5102 : Ref sig .tc := ⟨.hbm, 5618, rfl⟩
abbrev main_v5103 : Ref sig .tc := ⟨.hbm, 5619, rfl⟩
abbrev main_v5104 : Ref sig .tc := ⟨.hbm, 5620, rfl⟩
abbrev main_v5105 : Ref sig .tc := ⟨.hbm, 5621, rfl⟩
abbrev main_v5106 : Ref sig .tc := ⟨.hbm, 5622, rfl⟩
abbrev main_v5107 : Ref sig .tc := ⟨.hbm, 5623, rfl⟩
abbrev main_v5108 : Ref sig .tc := ⟨.hbm, 5624, rfl⟩
abbrev main_v5109 : Ref sig .tc := ⟨.hbm, 5625, rfl⟩
abbrev main_v5110 : Ref sig .tc := ⟨.hbm, 5626, rfl⟩
abbrev main_v5111 : Ref sig .tc := ⟨.hbm, 5627, rfl⟩
abbrev main_v5112 : Ref sig .tc := ⟨.hbm, 5628, rfl⟩
abbrev main_v5113 : Ref sig .tc := ⟨.hbm, 5629, rfl⟩
abbrev main_v5114 : Ref sig .tc := ⟨.hbm, 5630, rfl⟩
abbrev main_v5115 : Ref sig .tc := ⟨.hbm, 5631, rfl⟩
abbrev main_v5116 : Ref sig .tc := ⟨.hbm, 5632, rfl⟩
abbrev main_v5117 : Ref sig .tc := ⟨.hbm, 5633, rfl⟩
abbrev main_v5118 : Ref sig .tc := ⟨.hbm, 5634, rfl⟩
abbrev main_v5119 : Ref sig .tc := ⟨.hbm, 5635, rfl⟩
abbrev main_v5120 : Ref sig .tc := ⟨.hbm, 5636, rfl⟩
abbrev main_cst_510 : Ref sig .tc := ⟨.hbm, 5637, rfl⟩
abbrev main_v5121 : Ref sig .tc := ⟨.hbm, 5638, rfl⟩
abbrev main_c_511 : Ref sig .tc := ⟨.hbm, 5639, rfl⟩
abbrev main_v5122 : Ref sig .tc := ⟨.hbm, 5640, rfl⟩
abbrev main_v5123 : Ref sig .tc := ⟨.hbm, 5641, rfl⟩
abbrev main_v5124 : Ref sig .tc := ⟨.hbm, 5642, rfl⟩
abbrev main_v5125 : Ref sig .tc := ⟨.hbm, 5643, rfl⟩
abbrev main_v5126 : Ref sig .tc := ⟨.hbm, 5644, rfl⟩
abbrev main_v5127 : Ref sig .tc := ⟨.hbm, 5645, rfl⟩
abbrev main_v5128 : Ref sig .tc := ⟨.hbm, 5646, rfl⟩
abbrev main_v5129 : Ref sig .tc := ⟨.hbm, 5647, rfl⟩
abbrev main_v5130 : Ref sig .tc := ⟨.hbm, 5648, rfl⟩
abbrev main_v5131 : Ref sig .tc := ⟨.hbm, 5649, rfl⟩
abbrev main_v5132 : Ref sig .tc := ⟨.hbm, 5650, rfl⟩
abbrev main_v5133 : Ref sig .tc := ⟨.hbm, 5651, rfl⟩
abbrev main_v5134 : Ref sig .tc := ⟨.hbm, 5652, rfl⟩
abbrev main_v5135 : Ref sig .tc := ⟨.hbm, 5653, rfl⟩
abbrev main_v5136 : Ref sig .tc := ⟨.hbm, 5654, rfl⟩
abbrev main_v5137 : Ref sig .tc := ⟨.hbm, 5655, rfl⟩
abbrev main_v5138 : Ref sig .tc := ⟨.hbm, 5656, rfl⟩
abbrev main_v5139 : Ref sig .tc := ⟨.hbm, 5657, rfl⟩
abbrev main_v5140 : Ref sig .tc := ⟨.hbm, 5658, rfl⟩
abbrev main_cst_512 : Ref sig .tc := ⟨.hbm, 5659, rfl⟩
abbrev main_v5141 : Ref sig .tc := ⟨.hbm, 5660, rfl⟩
abbrev main_c_513 : Ref sig .tc := ⟨.hbm, 5661, rfl⟩
abbrev main_v5142 : Ref sig .tc := ⟨.hbm, 5662, rfl⟩
abbrev main_v5143 : Ref sig .tc := ⟨.hbm, 5663, rfl⟩
abbrev main_v5144 : Ref sig .tc := ⟨.hbm, 5664, rfl⟩
abbrev main_v5145 : Ref sig .tc := ⟨.hbm, 5665, rfl⟩
abbrev main_v5146 : Ref sig .tc := ⟨.hbm, 5666, rfl⟩
abbrev main_v5147 : Ref sig .tc := ⟨.hbm, 5667, rfl⟩
abbrev main_v5148 : Ref sig .tc := ⟨.hbm, 5668, rfl⟩
abbrev main_v5149 : Ref sig .tc := ⟨.hbm, 5669, rfl⟩
abbrev main_v5150 : Ref sig .tc := ⟨.hbm, 5670, rfl⟩
abbrev main_v5151 : Ref sig .tc := ⟨.hbm, 5671, rfl⟩
abbrev main_v5152 : Ref sig .tc := ⟨.hbm, 5672, rfl⟩
abbrev main_v5153 : Ref sig .tc := ⟨.hbm, 5673, rfl⟩
abbrev main_v5154 : Ref sig .tc := ⟨.hbm, 5674, rfl⟩
abbrev main_v5155 : Ref sig .tc := ⟨.hbm, 5675, rfl⟩
abbrev main_v5156 : Ref sig .tc := ⟨.hbm, 5676, rfl⟩
abbrev main_v5157 : Ref sig .tc := ⟨.hbm, 5677, rfl⟩
abbrev main_v5158 : Ref sig .tc := ⟨.hbm, 5678, rfl⟩
abbrev main_v5159 : Ref sig .tc := ⟨.hbm, 5679, rfl⟩
abbrev main_v5160 : Ref sig .tc := ⟨.hbm, 5680, rfl⟩
abbrev main_cst_514 : Ref sig .tc := ⟨.hbm, 5681, rfl⟩
abbrev main_v5161 : Ref sig .tc := ⟨.hbm, 5682, rfl⟩
abbrev main_c_515 : Ref sig .tc := ⟨.hbm, 5683, rfl⟩
abbrev main_v5162 : Ref sig .tc := ⟨.hbm, 5684, rfl⟩
abbrev main_v5163 : Ref sig .tc := ⟨.hbm, 5685, rfl⟩
abbrev main_v5164 : Ref sig .tc := ⟨.hbm, 5686, rfl⟩
abbrev main_v5165 : Ref sig .tc := ⟨.hbm, 5687, rfl⟩
abbrev main_v5166 : Ref sig .tc := ⟨.hbm, 5688, rfl⟩
abbrev main_v5167 : Ref sig .tc := ⟨.hbm, 5689, rfl⟩
abbrev main_v5168 : Ref sig .tc := ⟨.hbm, 5690, rfl⟩
abbrev main_v5169 : Ref sig .tc := ⟨.hbm, 5691, rfl⟩
abbrev main_v5170 : Ref sig .tc := ⟨.hbm, 5692, rfl⟩
abbrev main_v5171 : Ref sig .tc := ⟨.hbm, 5693, rfl⟩
abbrev main_v5172 : Ref sig .tc := ⟨.hbm, 5694, rfl⟩
abbrev main_v5173 : Ref sig .tc := ⟨.hbm, 5695, rfl⟩
abbrev main_v5174 : Ref sig .tc := ⟨.hbm, 5696, rfl⟩
abbrev main_v5175 : Ref sig .tc := ⟨.hbm, 5697, rfl⟩
abbrev main_v5176 : Ref sig .tc := ⟨.hbm, 5698, rfl⟩
abbrev main_v5177 : Ref sig .tc := ⟨.hbm, 5699, rfl⟩
abbrev main_v5178 : Ref sig .tc := ⟨.hbm, 5700, rfl⟩
abbrev main_v5179 : Ref sig .tc := ⟨.hbm, 5701, rfl⟩
abbrev main_v5180 : Ref sig .tc := ⟨.hbm, 5702, rfl⟩
abbrev main_cst_516 : Ref sig .tc := ⟨.hbm, 5703, rfl⟩
abbrev main_v5181 : Ref sig .tc := ⟨.hbm, 5704, rfl⟩
abbrev main_c_517 : Ref sig .tc := ⟨.hbm, 5705, rfl⟩
abbrev main_v5182 : Ref sig .tc := ⟨.hbm, 5706, rfl⟩
abbrev main_v5183 : Ref sig .tc := ⟨.hbm, 5707, rfl⟩
abbrev main_v5184 : Ref sig .tc := ⟨.hbm, 5708, rfl⟩
abbrev main_v5185 : Ref sig .tc := ⟨.hbm, 5709, rfl⟩
abbrev main_v5186 : Ref sig .tc := ⟨.hbm, 5710, rfl⟩
abbrev main_v5187 : Ref sig .tc := ⟨.hbm, 5711, rfl⟩
abbrev main_v5188 : Ref sig .tc := ⟨.hbm, 5712, rfl⟩
abbrev main_v5189 : Ref sig .tc := ⟨.hbm, 5713, rfl⟩
abbrev main_v5190 : Ref sig .tc := ⟨.hbm, 5714, rfl⟩
abbrev main_v5191 : Ref sig .tc := ⟨.hbm, 5715, rfl⟩
abbrev main_v5192 : Ref sig .tc := ⟨.hbm, 5716, rfl⟩
abbrev main_v5193 : Ref sig .tc := ⟨.hbm, 5717, rfl⟩
abbrev main_v5194 : Ref sig .tc := ⟨.hbm, 5718, rfl⟩
abbrev main_v5195 : Ref sig .tc := ⟨.hbm, 5719, rfl⟩
abbrev main_v5196 : Ref sig .tc := ⟨.hbm, 5720, rfl⟩
abbrev main_v5197 : Ref sig .tc := ⟨.hbm, 5721, rfl⟩
abbrev main_v5198 : Ref sig .tc := ⟨.hbm, 5722, rfl⟩
abbrev main_v5199 : Ref sig .tc := ⟨.hbm, 5723, rfl⟩
abbrev main_v5200 : Ref sig .tc := ⟨.hbm, 5724, rfl⟩
abbrev main_cst_518 : Ref sig .tc := ⟨.hbm, 5725, rfl⟩
abbrev main_v5201 : Ref sig .tc := ⟨.hbm, 5726, rfl⟩
abbrev main_c_519 : Ref sig .tc := ⟨.hbm, 5727, rfl⟩
abbrev main_v5202 : Ref sig .tc := ⟨.hbm, 5728, rfl⟩
abbrev main_v5203 : Ref sig .tc := ⟨.hbm, 5729, rfl⟩
abbrev main_v5204 : Ref sig .tc := ⟨.hbm, 5730, rfl⟩
abbrev main_v5205 : Ref sig .tc := ⟨.hbm, 5731, rfl⟩
abbrev main_v5206 : Ref sig .tc := ⟨.hbm, 5732, rfl⟩
abbrev main_v5207 : Ref sig .tc := ⟨.hbm, 5733, rfl⟩
abbrev main_v5208 : Ref sig .tc := ⟨.hbm, 5734, rfl⟩
abbrev main_v5209 : Ref sig .tc := ⟨.hbm, 5735, rfl⟩
abbrev main_v5210 : Ref sig .tc := ⟨.hbm, 5736, rfl⟩
abbrev main_v5211 : Ref sig .tc := ⟨.hbm, 5737, rfl⟩
abbrev main_v5212 : Ref sig .tc := ⟨.hbm, 5738, rfl⟩
abbrev main_v5213 : Ref sig .tc := ⟨.hbm, 5739, rfl⟩
abbrev main_v5214 : Ref sig .tc := ⟨.hbm, 5740, rfl⟩
abbrev main_v5215 : Ref sig .tc := ⟨.hbm, 5741, rfl⟩
abbrev main_v5216 : Ref sig .tc := ⟨.hbm, 5742, rfl⟩
abbrev main_v5217 : Ref sig .tc := ⟨.hbm, 5743, rfl⟩
abbrev main_v5218 : Ref sig .tc := ⟨.hbm, 5744, rfl⟩
abbrev main_v5219 : Ref sig .tc := ⟨.hbm, 5745, rfl⟩
abbrev main_v5220 : Ref sig .tc := ⟨.hbm, 5746, rfl⟩
abbrev main_cst_520 : Ref sig .tc := ⟨.hbm, 5747, rfl⟩
abbrev main_v5221 : Ref sig .tc := ⟨.hbm, 5748, rfl⟩
abbrev main_c_521 : Ref sig .tc := ⟨.hbm, 5749, rfl⟩
abbrev main_v5222 : Ref sig .tc := ⟨.hbm, 5750, rfl⟩
abbrev main_v5223 : Ref sig .tc := ⟨.hbm, 5751, rfl⟩
abbrev main_v5224 : Ref sig .tc := ⟨.hbm, 5752, rfl⟩
abbrev main_v5225 : Ref sig .tc := ⟨.hbm, 5753, rfl⟩
abbrev main_v5226 : Ref sig .tc := ⟨.hbm, 5754, rfl⟩
abbrev main_v5227 : Ref sig .tc := ⟨.hbm, 5755, rfl⟩
abbrev main_v5228 : Ref sig .tc := ⟨.hbm, 5756, rfl⟩
abbrev main_v5229 : Ref sig .tc := ⟨.hbm, 5757, rfl⟩
abbrev main_v5230 : Ref sig .tc := ⟨.hbm, 5758, rfl⟩
abbrev main_v5231 : Ref sig .tc := ⟨.hbm, 5759, rfl⟩
abbrev main_v5232 : Ref sig .tc := ⟨.hbm, 5760, rfl⟩
abbrev main_v5233 : Ref sig .tc := ⟨.hbm, 5761, rfl⟩
abbrev main_v5234 : Ref sig .tc := ⟨.hbm, 5762, rfl⟩
abbrev main_v5235 : Ref sig .tc := ⟨.hbm, 5763, rfl⟩
abbrev main_v5236 : Ref sig .tc := ⟨.hbm, 5764, rfl⟩
abbrev main_v5237 : Ref sig .tc := ⟨.hbm, 5765, rfl⟩
abbrev main_v5238 : Ref sig .tc := ⟨.hbm, 5766, rfl⟩
abbrev main_v5239 : Ref sig .tc := ⟨.hbm, 5767, rfl⟩
abbrev main_v5240 : Ref sig .tc := ⟨.hbm, 5768, rfl⟩
abbrev main_cst_522 : Ref sig .tc := ⟨.hbm, 5769, rfl⟩
abbrev main_v5241 : Ref sig .tc := ⟨.hbm, 5770, rfl⟩
abbrev main_c_523 : Ref sig .tc := ⟨.hbm, 5771, rfl⟩
abbrev main_v5242 : Ref sig .tc := ⟨.hbm, 5772, rfl⟩
abbrev main_v5243 : Ref sig .tc := ⟨.hbm, 5773, rfl⟩
abbrev main_v5244 : Ref sig .tc := ⟨.hbm, 5774, rfl⟩
abbrev main_v5245 : Ref sig .tc := ⟨.hbm, 5775, rfl⟩
abbrev main_v5246 : Ref sig .tc := ⟨.hbm, 5776, rfl⟩
abbrev main_v5247 : Ref sig .tc := ⟨.hbm, 5777, rfl⟩
abbrev main_v5248 : Ref sig .tc := ⟨.hbm, 5778, rfl⟩
abbrev main_v5249 : Ref sig .tc := ⟨.hbm, 5779, rfl⟩
abbrev main_v5250 : Ref sig .tc := ⟨.hbm, 5780, rfl⟩
abbrev main_v5251 : Ref sig .tc := ⟨.hbm, 5781, rfl⟩
abbrev main_v5252 : Ref sig .tc := ⟨.hbm, 5782, rfl⟩
abbrev main_v5253 : Ref sig .tc := ⟨.hbm, 5783, rfl⟩
abbrev main_v5254 : Ref sig .tc := ⟨.hbm, 5784, rfl⟩
abbrev main_v5255 : Ref sig .tc := ⟨.hbm, 5785, rfl⟩
abbrev main_v5256 : Ref sig .tc := ⟨.hbm, 5786, rfl⟩
abbrev main_v5257 : Ref sig .tc := ⟨.hbm, 5787, rfl⟩
abbrev main_v5258 : Ref sig .tc := ⟨.hbm, 5788, rfl⟩
abbrev main_v5259 : Ref sig .tc := ⟨.hbm, 5789, rfl⟩
abbrev main_v5260 : Ref sig .tc := ⟨.hbm, 5790, rfl⟩
abbrev main_cst_524 : Ref sig .tc := ⟨.hbm, 5791, rfl⟩
abbrev main_v5261 : Ref sig .tc := ⟨.hbm, 5792, rfl⟩
abbrev main_c_525 : Ref sig .tc := ⟨.hbm, 5793, rfl⟩
abbrev main_v5262 : Ref sig .tc := ⟨.hbm, 5794, rfl⟩
abbrev main_v5263 : Ref sig .tc := ⟨.hbm, 5795, rfl⟩
abbrev main_v5264 : Ref sig .tc := ⟨.hbm, 5796, rfl⟩
abbrev main_v5265 : Ref sig .tc := ⟨.hbm, 5797, rfl⟩
abbrev main_v5266 : Ref sig .tc := ⟨.hbm, 5798, rfl⟩
abbrev main_v5267 : Ref sig .tc := ⟨.hbm, 5799, rfl⟩
abbrev main_v5268 : Ref sig .tc := ⟨.hbm, 5800, rfl⟩
abbrev main_v5269 : Ref sig .tc := ⟨.hbm, 5801, rfl⟩
abbrev main_v5270 : Ref sig .tc := ⟨.hbm, 5802, rfl⟩
abbrev main_v5271 : Ref sig .tc := ⟨.hbm, 5803, rfl⟩
abbrev main_v5272 : Ref sig .tc := ⟨.hbm, 5804, rfl⟩
abbrev main_v5273 : Ref sig .tc := ⟨.hbm, 5805, rfl⟩
abbrev main_v5274 : Ref sig .tc := ⟨.hbm, 5806, rfl⟩
abbrev main_v5275 : Ref sig .tc := ⟨.hbm, 5807, rfl⟩
abbrev main_v5276 : Ref sig .tc := ⟨.hbm, 5808, rfl⟩
abbrev main_v5277 : Ref sig .tc := ⟨.hbm, 5809, rfl⟩
abbrev main_v5278 : Ref sig .tc := ⟨.hbm, 5810, rfl⟩
abbrev main_v5279 : Ref sig .tc := ⟨.hbm, 5811, rfl⟩
abbrev main_v5280 : Ref sig .tc := ⟨.hbm, 5812, rfl⟩
abbrev main_cst_526 : Ref sig .tc := ⟨.hbm, 5813, rfl⟩
abbrev main_v5281 : Ref sig .tc := ⟨.hbm, 5814, rfl⟩
abbrev main_c_527 : Ref sig .tc := ⟨.hbm, 5815, rfl⟩
abbrev main_v5282 : Ref sig .tc := ⟨.hbm, 5816, rfl⟩
abbrev main_v5283 : Ref sig .tc := ⟨.hbm, 5817, rfl⟩
abbrev main_v5284 : Ref sig .tc := ⟨.hbm, 5818, rfl⟩
abbrev main_v5285 : Ref sig .tc := ⟨.hbm, 5819, rfl⟩
abbrev main_v5286 : Ref sig .tc := ⟨.hbm, 5820, rfl⟩
abbrev main_v5287 : Ref sig .tc := ⟨.hbm, 5821, rfl⟩
abbrev main_v5288 : Ref sig .tc := ⟨.hbm, 5822, rfl⟩
abbrev main_v5289 : Ref sig .tc := ⟨.hbm, 5823, rfl⟩
abbrev main_v5290 : Ref sig .tc := ⟨.hbm, 5824, rfl⟩
abbrev main_v5291 : Ref sig .tc := ⟨.hbm, 5825, rfl⟩
abbrev main_v5292 : Ref sig .tc := ⟨.hbm, 5826, rfl⟩
abbrev main_v5293 : Ref sig .tc := ⟨.hbm, 5827, rfl⟩
abbrev main_v5294 : Ref sig .tc := ⟨.hbm, 5828, rfl⟩
abbrev main_v5295 : Ref sig .tc := ⟨.hbm, 5829, rfl⟩
abbrev main_v5296 : Ref sig .tc := ⟨.hbm, 5830, rfl⟩
abbrev main_v5297 : Ref sig .tc := ⟨.hbm, 5831, rfl⟩
abbrev main_v5298 : Ref sig .tc := ⟨.hbm, 5832, rfl⟩
abbrev main_v5299 : Ref sig .tc := ⟨.hbm, 5833, rfl⟩
abbrev main_v5300 : Ref sig .tc := ⟨.hbm, 5834, rfl⟩
abbrev main_cst_528 : Ref sig .tc := ⟨.hbm, 5835, rfl⟩
abbrev main_v5301 : Ref sig .tc := ⟨.hbm, 5836, rfl⟩
abbrev main_c_529 : Ref sig .tc := ⟨.hbm, 5837, rfl⟩
abbrev main_v5302 : Ref sig .tc := ⟨.hbm, 5838, rfl⟩
abbrev main_v5303 : Ref sig .tc := ⟨.hbm, 5839, rfl⟩
abbrev main_v5304 : Ref sig .tc := ⟨.hbm, 5840, rfl⟩
abbrev main_v5305 : Ref sig .tc := ⟨.hbm, 5841, rfl⟩
abbrev main_v5306 : Ref sig .tc := ⟨.hbm, 5842, rfl⟩
abbrev main_v5307 : Ref sig .tc := ⟨.hbm, 5843, rfl⟩
abbrev main_v5308 : Ref sig .tc := ⟨.hbm, 5844, rfl⟩
abbrev main_v5309 : Ref sig .tc := ⟨.hbm, 5845, rfl⟩
abbrev main_v5310 : Ref sig .tc := ⟨.hbm, 5846, rfl⟩
abbrev main_v5311 : Ref sig .tc := ⟨.hbm, 5847, rfl⟩
abbrev main_v5312 : Ref sig .tc := ⟨.hbm, 5848, rfl⟩
abbrev main_v5313 : Ref sig .tc := ⟨.hbm, 5849, rfl⟩
abbrev main_v5314 : Ref sig .tc := ⟨.hbm, 5850, rfl⟩
abbrev main_v5315 : Ref sig .tc := ⟨.hbm, 5851, rfl⟩
abbrev main_v5316 : Ref sig .tc := ⟨.hbm, 5852, rfl⟩
abbrev main_v5317 : Ref sig .tc := ⟨.hbm, 5853, rfl⟩
abbrev main_v5318 : Ref sig .tc := ⟨.hbm, 5854, rfl⟩
abbrev main_v5319 : Ref sig .tc := ⟨.hbm, 5855, rfl⟩
abbrev main_v5320 : Ref sig .tc := ⟨.hbm, 5856, rfl⟩
abbrev main_cst_530 : Ref sig .tc := ⟨.hbm, 5857, rfl⟩
abbrev main_v5321 : Ref sig .tc := ⟨.hbm, 5858, rfl⟩
abbrev main_c_531 : Ref sig .tc := ⟨.hbm, 5859, rfl⟩
abbrev main_v5322 : Ref sig .tc := ⟨.hbm, 5860, rfl⟩
abbrev main_v5323 : Ref sig .tc := ⟨.hbm, 5861, rfl⟩
abbrev main_v5324 : Ref sig .tc := ⟨.hbm, 5862, rfl⟩
abbrev main_v5325 : Ref sig .tc := ⟨.hbm, 5863, rfl⟩
abbrev main_v5326 : Ref sig .tc := ⟨.hbm, 5864, rfl⟩
abbrev main_v5327 : Ref sig .tc := ⟨.hbm, 5865, rfl⟩
abbrev main_v5328 : Ref sig .tc := ⟨.hbm, 5866, rfl⟩
abbrev main_v5329 : Ref sig .tc := ⟨.hbm, 5867, rfl⟩
abbrev main_v5330 : Ref sig .tc := ⟨.hbm, 5868, rfl⟩
abbrev main_v5331 : Ref sig .tc := ⟨.hbm, 5869, rfl⟩
abbrev main_v5332 : Ref sig .tc := ⟨.hbm, 5870, rfl⟩
abbrev main_v5333 : Ref sig .tc := ⟨.hbm, 5871, rfl⟩
abbrev main_v5334 : Ref sig .tc := ⟨.hbm, 5872, rfl⟩
abbrev main_v5335 : Ref sig .tc := ⟨.hbm, 5873, rfl⟩
abbrev main_v5336 : Ref sig .tc := ⟨.hbm, 5874, rfl⟩
abbrev main_v5337 : Ref sig .tc := ⟨.hbm, 5875, rfl⟩
abbrev main_v5338 : Ref sig .tc := ⟨.hbm, 5876, rfl⟩
abbrev main_v5339 : Ref sig .tc := ⟨.hbm, 5877, rfl⟩
abbrev main_v5340 : Ref sig .tc := ⟨.hbm, 5878, rfl⟩
abbrev main_cst_532 : Ref sig .tc := ⟨.hbm, 5879, rfl⟩
abbrev main_v5341 : Ref sig .tc := ⟨.hbm, 5880, rfl⟩
abbrev main_c_533 : Ref sig .tc := ⟨.hbm, 5881, rfl⟩
abbrev main_v5342 : Ref sig .tc := ⟨.hbm, 5882, rfl⟩
abbrev main_v5343 : Ref sig .tc := ⟨.hbm, 5883, rfl⟩
abbrev main_v5344 : Ref sig .tc := ⟨.hbm, 5884, rfl⟩
abbrev main_v5345 : Ref sig .tc := ⟨.hbm, 5885, rfl⟩
abbrev main_v5346 : Ref sig .tc := ⟨.hbm, 5886, rfl⟩
abbrev main_v5347 : Ref sig .tc := ⟨.hbm, 5887, rfl⟩
abbrev main_v5348 : Ref sig .tc := ⟨.hbm, 5888, rfl⟩
abbrev main_v5349 : Ref sig .tc := ⟨.hbm, 5889, rfl⟩
abbrev main_v5350 : Ref sig .tc := ⟨.hbm, 5890, rfl⟩
abbrev main_v5351 : Ref sig .tc := ⟨.hbm, 5891, rfl⟩
abbrev main_v5352 : Ref sig .tc := ⟨.hbm, 5892, rfl⟩
abbrev main_v5353 : Ref sig .tc := ⟨.hbm, 5893, rfl⟩
abbrev main_v5354 : Ref sig .tc := ⟨.hbm, 5894, rfl⟩
abbrev main_v5355 : Ref sig .tc := ⟨.hbm, 5895, rfl⟩
abbrev main_v5356 : Ref sig .tc := ⟨.hbm, 5896, rfl⟩
abbrev main_v5357 : Ref sig .tc := ⟨.hbm, 5897, rfl⟩
abbrev main_v5358 : Ref sig .tc := ⟨.hbm, 5898, rfl⟩
abbrev main_v5359 : Ref sig .tc := ⟨.hbm, 5899, rfl⟩
abbrev main_v5360 : Ref sig .tc := ⟨.hbm, 5900, rfl⟩
abbrev main_cst_534 : Ref sig .tc := ⟨.hbm, 5901, rfl⟩
abbrev main_v5361 : Ref sig .tc := ⟨.hbm, 5902, rfl⟩
abbrev main_c_535 : Ref sig .tc := ⟨.hbm, 5903, rfl⟩
abbrev main_v5362 : Ref sig .tc := ⟨.hbm, 5904, rfl⟩
abbrev main_v5363 : Ref sig .tc := ⟨.hbm, 5905, rfl⟩
abbrev main_v5364 : Ref sig .tc := ⟨.hbm, 5906, rfl⟩
abbrev main_v5365 : Ref sig .tc := ⟨.hbm, 5907, rfl⟩
abbrev main_v5366 : Ref sig .tc := ⟨.hbm, 5908, rfl⟩
abbrev main_v5367 : Ref sig .tc := ⟨.hbm, 5909, rfl⟩
abbrev main_v5368 : Ref sig .tc := ⟨.hbm, 5910, rfl⟩
abbrev main_v5369 : Ref sig .tc := ⟨.hbm, 5911, rfl⟩
abbrev main_v5370 : Ref sig .tc := ⟨.hbm, 5912, rfl⟩
abbrev main_v5371 : Ref sig .tc := ⟨.hbm, 5913, rfl⟩
abbrev main_v5372 : Ref sig .tc := ⟨.hbm, 5914, rfl⟩
abbrev main_v5373 : Ref sig .tc := ⟨.hbm, 5915, rfl⟩
abbrev main_v5374 : Ref sig .tc := ⟨.hbm, 5916, rfl⟩
abbrev main_v5375 : Ref sig .tc := ⟨.hbm, 5917, rfl⟩
abbrev main_v5376 : Ref sig .tc := ⟨.hbm, 5918, rfl⟩
abbrev main_v5377 : Ref sig .tc := ⟨.hbm, 5919, rfl⟩
abbrev main_v5378 : Ref sig .tc := ⟨.hbm, 5920, rfl⟩
abbrev main_v5379 : Ref sig .tc := ⟨.hbm, 5921, rfl⟩
abbrev main_v5380 : Ref sig .tc := ⟨.hbm, 5922, rfl⟩
abbrev main_cst_536 : Ref sig .tc := ⟨.hbm, 5923, rfl⟩
abbrev main_v5381 : Ref sig .tc := ⟨.hbm, 5924, rfl⟩
abbrev main_c_537 : Ref sig .tc := ⟨.hbm, 5925, rfl⟩
abbrev main_v5382 : Ref sig .tc := ⟨.hbm, 5926, rfl⟩
abbrev main_v5383 : Ref sig .tc := ⟨.hbm, 5927, rfl⟩
abbrev main_v5384 : Ref sig .tc := ⟨.hbm, 5928, rfl⟩
abbrev main_v5385 : Ref sig .tc := ⟨.hbm, 5929, rfl⟩
abbrev main_v5386 : Ref sig .tc := ⟨.hbm, 5930, rfl⟩
abbrev main_v5387 : Ref sig .tc := ⟨.hbm, 5931, rfl⟩
abbrev main_v5388 : Ref sig .tc := ⟨.hbm, 5932, rfl⟩
abbrev main_v5389 : Ref sig .tc := ⟨.hbm, 5933, rfl⟩
abbrev main_v5390 : Ref sig .tc := ⟨.hbm, 5934, rfl⟩
abbrev main_v5391 : Ref sig .tc := ⟨.hbm, 5935, rfl⟩
abbrev main_v5392 : Ref sig .tc := ⟨.hbm, 5936, rfl⟩
abbrev main_v5393 : Ref sig .tc := ⟨.hbm, 5937, rfl⟩
abbrev main_v5394 : Ref sig .tc := ⟨.hbm, 5938, rfl⟩
abbrev main_v5395 : Ref sig .tc := ⟨.hbm, 5939, rfl⟩
abbrev main_v5396 : Ref sig .tc := ⟨.hbm, 5940, rfl⟩
abbrev main_v5397 : Ref sig .tc := ⟨.hbm, 5941, rfl⟩
abbrev main_v5398 : Ref sig .tc := ⟨.hbm, 5942, rfl⟩
abbrev main_v5399 : Ref sig .tc := ⟨.hbm, 5943, rfl⟩
abbrev main_v5400 : Ref sig .tc := ⟨.hbm, 5944, rfl⟩
abbrev main_cst_538 : Ref sig .tc := ⟨.hbm, 5945, rfl⟩
abbrev main_v5401 : Ref sig .tc := ⟨.hbm, 5946, rfl⟩
abbrev main_c_539 : Ref sig .tc := ⟨.hbm, 5947, rfl⟩
abbrev main_v5402 : Ref sig .tc := ⟨.hbm, 5948, rfl⟩
abbrev main_v5403 : Ref sig .tc := ⟨.hbm, 5949, rfl⟩
abbrev main_v5404 : Ref sig .tc := ⟨.hbm, 5950, rfl⟩
abbrev main_v5405 : Ref sig .tc := ⟨.hbm, 5951, rfl⟩
abbrev main_v5406 : Ref sig .tc := ⟨.hbm, 5952, rfl⟩
abbrev main_v5407 : Ref sig .tc := ⟨.hbm, 5953, rfl⟩
abbrev main_v5408 : Ref sig .tc := ⟨.hbm, 5954, rfl⟩
abbrev main_v5409 : Ref sig .tc := ⟨.hbm, 5955, rfl⟩
abbrev main_v5410 : Ref sig .tc := ⟨.hbm, 5956, rfl⟩
abbrev main_v5411 : Ref sig .tc := ⟨.hbm, 5957, rfl⟩
abbrev main_v5412 : Ref sig .tc := ⟨.hbm, 5958, rfl⟩
abbrev main_v5413 : Ref sig .tc := ⟨.hbm, 5959, rfl⟩
abbrev main_v5414 : Ref sig .tc := ⟨.hbm, 5960, rfl⟩
abbrev main_v5415 : Ref sig .tc := ⟨.hbm, 5961, rfl⟩
abbrev main_v5416 : Ref sig .tc := ⟨.hbm, 5962, rfl⟩
abbrev main_v5417 : Ref sig .tc := ⟨.hbm, 5963, rfl⟩
abbrev main_v5418 : Ref sig .tc := ⟨.hbm, 5964, rfl⟩
abbrev main_v5419 : Ref sig .tc := ⟨.hbm, 5965, rfl⟩
abbrev main_v5420 : Ref sig .tc := ⟨.hbm, 5966, rfl⟩
abbrev main_cst_540 : Ref sig .tc := ⟨.hbm, 5967, rfl⟩
abbrev main_v5421 : Ref sig .tc := ⟨.hbm, 5968, rfl⟩
abbrev main_c_541 : Ref sig .tc := ⟨.hbm, 5969, rfl⟩
abbrev main_v5422 : Ref sig .tc := ⟨.hbm, 5970, rfl⟩
abbrev main_v5423 : Ref sig .tc := ⟨.hbm, 5971, rfl⟩
abbrev main_v5424 : Ref sig .tc := ⟨.hbm, 5972, rfl⟩
abbrev main_v5425 : Ref sig .tc := ⟨.hbm, 5973, rfl⟩
abbrev main_v5426 : Ref sig .tc := ⟨.hbm, 5974, rfl⟩
abbrev main_v5427 : Ref sig .tc := ⟨.hbm, 5975, rfl⟩
abbrev main_v5428 : Ref sig .tc := ⟨.hbm, 5976, rfl⟩
abbrev main_v5429 : Ref sig .tc := ⟨.hbm, 5977, rfl⟩
abbrev main_v5430 : Ref sig .tc := ⟨.hbm, 5978, rfl⟩
abbrev main_v5431 : Ref sig .tc := ⟨.hbm, 5979, rfl⟩
abbrev main_v5432 : Ref sig .tc := ⟨.hbm, 5980, rfl⟩
abbrev main_v5433 : Ref sig .tc := ⟨.hbm, 5981, rfl⟩
abbrev main_v5434 : Ref sig .tc := ⟨.hbm, 5982, rfl⟩
abbrev main_v5435 : Ref sig .tc := ⟨.hbm, 5983, rfl⟩
abbrev main_v5436 : Ref sig .tc := ⟨.hbm, 5984, rfl⟩
abbrev main_v5437 : Ref sig .tc := ⟨.hbm, 5985, rfl⟩
abbrev main_v5438 : Ref sig .tc := ⟨.hbm, 5986, rfl⟩
abbrev main_v5439 : Ref sig .tc := ⟨.hbm, 5987, rfl⟩
abbrev main_v5440 : Ref sig .tc := ⟨.hbm, 5988, rfl⟩
abbrev main_cst_542 : Ref sig .tc := ⟨.hbm, 5989, rfl⟩
abbrev main_v5441 : Ref sig .tc := ⟨.hbm, 5990, rfl⟩
abbrev main_c_543 : Ref sig .tc := ⟨.hbm, 5991, rfl⟩
abbrev main_v5442 : Ref sig .tc := ⟨.hbm, 5992, rfl⟩
abbrev main_v5443 : Ref sig .tc := ⟨.hbm, 5993, rfl⟩
abbrev main_v5444 : Ref sig .tc := ⟨.hbm, 5994, rfl⟩
abbrev main_v5445 : Ref sig .tc := ⟨.hbm, 5995, rfl⟩
abbrev main_v5446 : Ref sig .tc := ⟨.hbm, 5996, rfl⟩
abbrev main_v5447 : Ref sig .tc := ⟨.hbm, 5997, rfl⟩
abbrev main_v5448 : Ref sig .tc := ⟨.hbm, 5998, rfl⟩
abbrev main_v5449 : Ref sig .tc := ⟨.hbm, 5999, rfl⟩
abbrev main_v5450 : Ref sig .tc := ⟨.hbm, 6000, rfl⟩
abbrev main_v5451 : Ref sig .tc := ⟨.hbm, 6001, rfl⟩
abbrev main_v5452 : Ref sig .tc := ⟨.hbm, 6002, rfl⟩
abbrev main_v5453 : Ref sig .tc := ⟨.hbm, 6003, rfl⟩
abbrev main_v5454 : Ref sig .tc := ⟨.hbm, 6004, rfl⟩
abbrev main_v5455 : Ref sig .tc := ⟨.hbm, 6005, rfl⟩
abbrev main_v5456 : Ref sig .tc := ⟨.hbm, 6006, rfl⟩
abbrev main_v5457 : Ref sig .tc := ⟨.hbm, 6007, rfl⟩
abbrev main_v5458 : Ref sig .tc := ⟨.hbm, 6008, rfl⟩
abbrev main_v5459 : Ref sig .tc := ⟨.hbm, 6009, rfl⟩
abbrev main_v5460 : Ref sig .tc := ⟨.hbm, 6010, rfl⟩
abbrev main_cst_544 : Ref sig .tc := ⟨.hbm, 6011, rfl⟩
abbrev main_v5461 : Ref sig .tc := ⟨.hbm, 6012, rfl⟩
abbrev main_c_545 : Ref sig .tc := ⟨.hbm, 6013, rfl⟩
abbrev main_v5462 : Ref sig .tc := ⟨.hbm, 6014, rfl⟩
abbrev main_v5463 : Ref sig .tc := ⟨.hbm, 6015, rfl⟩
abbrev main_v5464 : Ref sig .tc := ⟨.hbm, 6016, rfl⟩
abbrev main_v5465 : Ref sig .tc := ⟨.hbm, 6017, rfl⟩
abbrev main_v5466 : Ref sig .tc := ⟨.hbm, 6018, rfl⟩
abbrev main_v5467 : Ref sig .tc := ⟨.hbm, 6019, rfl⟩
abbrev main_v5468 : Ref sig .tc := ⟨.hbm, 6020, rfl⟩
abbrev main_v5469 : Ref sig .tc := ⟨.hbm, 6021, rfl⟩
abbrev main_v5470 : Ref sig .tc := ⟨.hbm, 6022, rfl⟩
abbrev main_v5471 : Ref sig .tc := ⟨.hbm, 6023, rfl⟩
abbrev main_v5472 : Ref sig .tc := ⟨.hbm, 6024, rfl⟩
abbrev main_v5473 : Ref sig .tc := ⟨.hbm, 6025, rfl⟩
abbrev main_v5474 : Ref sig .tc := ⟨.hbm, 6026, rfl⟩
abbrev main_v5475 : Ref sig .tc := ⟨.hbm, 6027, rfl⟩
abbrev main_v5476 : Ref sig .tc := ⟨.hbm, 6028, rfl⟩
abbrev main_v5477 : Ref sig .tc := ⟨.hbm, 6029, rfl⟩
abbrev main_v5478 : Ref sig .tc := ⟨.hbm, 6030, rfl⟩
abbrev main_v5479 : Ref sig .tc := ⟨.hbm, 6031, rfl⟩
abbrev main_v5480 : Ref sig .tc := ⟨.hbm, 6032, rfl⟩
abbrev main_cst_546 : Ref sig .tc := ⟨.hbm, 6033, rfl⟩
abbrev main_v5481 : Ref sig .tc := ⟨.hbm, 6034, rfl⟩
abbrev main_c_547 : Ref sig .tc := ⟨.hbm, 6035, rfl⟩
abbrev main_v5482 : Ref sig .tc := ⟨.hbm, 6036, rfl⟩
abbrev main_v5483 : Ref sig .tc := ⟨.hbm, 6037, rfl⟩
abbrev main_v5484 : Ref sig .tc := ⟨.hbm, 6038, rfl⟩
abbrev main_v5485 : Ref sig .tc := ⟨.hbm, 6039, rfl⟩
abbrev main_v5486 : Ref sig .tc := ⟨.hbm, 6040, rfl⟩
abbrev main_v5487 : Ref sig .tc := ⟨.hbm, 6041, rfl⟩
abbrev main_v5488 : Ref sig .tc := ⟨.hbm, 6042, rfl⟩
abbrev main_v5489 : Ref sig .tc := ⟨.hbm, 6043, rfl⟩
abbrev main_v5490 : Ref sig .tc := ⟨.hbm, 6044, rfl⟩
abbrev main_v5491 : Ref sig .tc := ⟨.hbm, 6045, rfl⟩
abbrev main_v5492 : Ref sig .tc := ⟨.hbm, 6046, rfl⟩
abbrev main_v5493 : Ref sig .tc := ⟨.hbm, 6047, rfl⟩
abbrev main_v5494 : Ref sig .tc := ⟨.hbm, 6048, rfl⟩
abbrev main_v5495 : Ref sig .tc := ⟨.hbm, 6049, rfl⟩
abbrev main_v5496 : Ref sig .tc := ⟨.hbm, 6050, rfl⟩
abbrev main_v5497 : Ref sig .tc := ⟨.hbm, 6051, rfl⟩
abbrev main_v5498 : Ref sig .tc := ⟨.hbm, 6052, rfl⟩
abbrev main_v5499 : Ref sig .tc := ⟨.hbm, 6053, rfl⟩
abbrev main_v5500 : Ref sig .tc := ⟨.hbm, 6054, rfl⟩
abbrev main_cst_548 : Ref sig .tc := ⟨.hbm, 6055, rfl⟩
abbrev main_v5501 : Ref sig .tc := ⟨.hbm, 6056, rfl⟩
abbrev main_c_549 : Ref sig .tc := ⟨.hbm, 6057, rfl⟩
abbrev main_v5502 : Ref sig .tc := ⟨.hbm, 6058, rfl⟩
abbrev main_v5503 : Ref sig .tc := ⟨.hbm, 6059, rfl⟩
abbrev main_v5504 : Ref sig .tc := ⟨.hbm, 6060, rfl⟩
abbrev main_v5505 : Ref sig .tc := ⟨.hbm, 6061, rfl⟩
abbrev main_v5506 : Ref sig .tc := ⟨.hbm, 6062, rfl⟩
abbrev main_v5507 : Ref sig .tc := ⟨.hbm, 6063, rfl⟩
abbrev main_v5508 : Ref sig .tc := ⟨.hbm, 6064, rfl⟩
abbrev main_v5509 : Ref sig .tc := ⟨.hbm, 6065, rfl⟩
abbrev main_v5510 : Ref sig .tc := ⟨.hbm, 6066, rfl⟩
abbrev main_v5511 : Ref sig .tc := ⟨.hbm, 6067, rfl⟩
abbrev main_v5512 : Ref sig .tc := ⟨.hbm, 6068, rfl⟩
abbrev main_v5513 : Ref sig .tc := ⟨.hbm, 6069, rfl⟩
abbrev main_v5514 : Ref sig .tc := ⟨.hbm, 6070, rfl⟩
abbrev main_v5515 : Ref sig .tc := ⟨.hbm, 6071, rfl⟩
abbrev main_v5516 : Ref sig .tc := ⟨.hbm, 6072, rfl⟩
abbrev main_v5517 : Ref sig .tc := ⟨.hbm, 6073, rfl⟩
abbrev main_v5518 : Ref sig .tc := ⟨.hbm, 6074, rfl⟩
abbrev main_v5519 : Ref sig .tc := ⟨.hbm, 6075, rfl⟩
abbrev main_v5520 : Ref sig .tc := ⟨.hbm, 6076, rfl⟩
abbrev main_cst_550 : Ref sig .tc := ⟨.hbm, 6077, rfl⟩
abbrev main_v5521 : Ref sig .tc := ⟨.hbm, 6078, rfl⟩
abbrev main_c_551 : Ref sig .tc := ⟨.hbm, 6079, rfl⟩
abbrev main_v5522 : Ref sig .tc := ⟨.hbm, 6080, rfl⟩
abbrev main_v5523 : Ref sig .tc := ⟨.hbm, 6081, rfl⟩
abbrev main_v5524 : Ref sig .tc := ⟨.hbm, 6082, rfl⟩
abbrev main_v5525 : Ref sig .tc := ⟨.hbm, 6083, rfl⟩
abbrev main_v5526 : Ref sig .tc := ⟨.hbm, 6084, rfl⟩
abbrev main_v5527 : Ref sig .tc := ⟨.hbm, 6085, rfl⟩
abbrev main_v5528 : Ref sig .tc := ⟨.hbm, 6086, rfl⟩
abbrev main_v5529 : Ref sig .tc := ⟨.hbm, 6087, rfl⟩
abbrev main_v5530 : Ref sig .tc := ⟨.hbm, 6088, rfl⟩
abbrev main_v5531 : Ref sig .tc := ⟨.hbm, 6089, rfl⟩
abbrev main_v5532 : Ref sig .tc := ⟨.hbm, 6090, rfl⟩
abbrev main_v5533 : Ref sig .tc := ⟨.hbm, 6091, rfl⟩
abbrev main_v5534 : Ref sig .tc := ⟨.hbm, 6092, rfl⟩
abbrev main_v5535 : Ref sig .tc := ⟨.hbm, 6093, rfl⟩
abbrev main_v5536 : Ref sig .tc := ⟨.hbm, 6094, rfl⟩
abbrev main_v5537 : Ref sig .tc := ⟨.hbm, 6095, rfl⟩
abbrev main_v5538 : Ref sig .tc := ⟨.hbm, 6096, rfl⟩
abbrev main_v5539 : Ref sig .tc := ⟨.hbm, 6097, rfl⟩
abbrev main_v5540 : Ref sig .tc := ⟨.hbm, 6098, rfl⟩
abbrev main_cst_552 : Ref sig .tc := ⟨.hbm, 6099, rfl⟩
abbrev main_v5541 : Ref sig .tc := ⟨.hbm, 6100, rfl⟩
abbrev main_c_553 : Ref sig .tc := ⟨.hbm, 6101, rfl⟩
abbrev main_v5542 : Ref sig .tc := ⟨.hbm, 6102, rfl⟩
abbrev main_v5543 : Ref sig .tc := ⟨.hbm, 6103, rfl⟩
abbrev main_v5544 : Ref sig .tc := ⟨.hbm, 6104, rfl⟩
abbrev main_v5545 : Ref sig .tc := ⟨.hbm, 6105, rfl⟩
abbrev main_v5546 : Ref sig .tc := ⟨.hbm, 6106, rfl⟩
abbrev main_v5547 : Ref sig .tc := ⟨.hbm, 6107, rfl⟩
abbrev main_v5548 : Ref sig .tc := ⟨.hbm, 6108, rfl⟩
abbrev main_v5549 : Ref sig .tc := ⟨.hbm, 6109, rfl⟩
abbrev main_v5550 : Ref sig .tc := ⟨.hbm, 6110, rfl⟩
abbrev main_v5551 : Ref sig .tc := ⟨.hbm, 6111, rfl⟩
abbrev main_v5552 : Ref sig .tc := ⟨.hbm, 6112, rfl⟩
abbrev main_v5553 : Ref sig .tc := ⟨.hbm, 6113, rfl⟩
abbrev main_v5554 : Ref sig .tc := ⟨.hbm, 6114, rfl⟩
abbrev main_v5555 : Ref sig .tc := ⟨.hbm, 6115, rfl⟩
abbrev main_v5556 : Ref sig .tc := ⟨.hbm, 6116, rfl⟩
abbrev main_v5557 : Ref sig .tc := ⟨.hbm, 6117, rfl⟩
abbrev main_v5558 : Ref sig .tc := ⟨.hbm, 6118, rfl⟩
abbrev main_v5559 : Ref sig .tc := ⟨.hbm, 6119, rfl⟩
abbrev main_v5560 : Ref sig .tc := ⟨.hbm, 6120, rfl⟩
abbrev main_cst_554 : Ref sig .tc := ⟨.hbm, 6121, rfl⟩
abbrev main_v5561 : Ref sig .tc := ⟨.hbm, 6122, rfl⟩
abbrev main_c_555 : Ref sig .tc := ⟨.hbm, 6123, rfl⟩
abbrev main_v5562 : Ref sig .tc := ⟨.hbm, 6124, rfl⟩
abbrev main_v5563 : Ref sig .tc := ⟨.hbm, 6125, rfl⟩
abbrev main_v5564 : Ref sig .tc := ⟨.hbm, 6126, rfl⟩
abbrev main_v5565 : Ref sig .tc := ⟨.hbm, 6127, rfl⟩
abbrev main_v5566 : Ref sig .tc := ⟨.hbm, 6128, rfl⟩
abbrev main_v5567 : Ref sig .tc := ⟨.hbm, 6129, rfl⟩
abbrev main_v5568 : Ref sig .tc := ⟨.hbm, 6130, rfl⟩
abbrev main_v5569 : Ref sig .tc := ⟨.hbm, 6131, rfl⟩
abbrev main_v5570 : Ref sig .tc := ⟨.hbm, 6132, rfl⟩
abbrev main_v5571 : Ref sig .tc := ⟨.hbm, 6133, rfl⟩
abbrev main_v5572 : Ref sig .tc := ⟨.hbm, 6134, rfl⟩
abbrev main_v5573 : Ref sig .tc := ⟨.hbm, 6135, rfl⟩
abbrev main_v5574 : Ref sig .tc := ⟨.hbm, 6136, rfl⟩
abbrev main_v5575 : Ref sig .tc := ⟨.hbm, 6137, rfl⟩
abbrev main_v5576 : Ref sig .tc := ⟨.hbm, 6138, rfl⟩
abbrev main_v5577 : Ref sig .tc := ⟨.hbm, 6139, rfl⟩
abbrev main_v5578 : Ref sig .tc := ⟨.hbm, 6140, rfl⟩
abbrev main_v5579 : Ref sig .tc := ⟨.hbm, 6141, rfl⟩
abbrev main_v5580 : Ref sig .tc := ⟨.hbm, 6142, rfl⟩
abbrev main_cst_556 : Ref sig .tc := ⟨.hbm, 6143, rfl⟩
abbrev main_v5581 : Ref sig .tc := ⟨.hbm, 6144, rfl⟩
abbrev main_c_557 : Ref sig .tc := ⟨.hbm, 6145, rfl⟩
abbrev main_v5582 : Ref sig .tc := ⟨.hbm, 6146, rfl⟩
abbrev main_v5583 : Ref sig .tc := ⟨.hbm, 6147, rfl⟩
abbrev main_v5584 : Ref sig .tc := ⟨.hbm, 6148, rfl⟩
abbrev main_v5585 : Ref sig .tc := ⟨.hbm, 6149, rfl⟩
abbrev main_v5586 : Ref sig .tc := ⟨.hbm, 6150, rfl⟩
abbrev main_v5587 : Ref sig .tc := ⟨.hbm, 6151, rfl⟩
abbrev main_v5588 : Ref sig .tc := ⟨.hbm, 6152, rfl⟩
abbrev main_v5589 : Ref sig .tc := ⟨.hbm, 6153, rfl⟩
abbrev main_v5590 : Ref sig .tc := ⟨.hbm, 6154, rfl⟩
abbrev main_v5591 : Ref sig .tc := ⟨.hbm, 6155, rfl⟩
abbrev main_v5592 : Ref sig .tc := ⟨.hbm, 6156, rfl⟩
abbrev main_v5593 : Ref sig .tc := ⟨.hbm, 6157, rfl⟩
abbrev main_v5594 : Ref sig .tc := ⟨.hbm, 6158, rfl⟩
abbrev main_v5595 : Ref sig .tc := ⟨.hbm, 6159, rfl⟩
abbrev main_v5596 : Ref sig .tc := ⟨.hbm, 6160, rfl⟩
abbrev main_v5597 : Ref sig .tc := ⟨.hbm, 6161, rfl⟩
abbrev main_v5598 : Ref sig .tc := ⟨.hbm, 6162, rfl⟩
abbrev main_v5599 : Ref sig .tc := ⟨.hbm, 6163, rfl⟩
abbrev main_v5600 : Ref sig .tc := ⟨.hbm, 6164, rfl⟩
abbrev main_cst_558 : Ref sig .tc := ⟨.hbm, 6165, rfl⟩
abbrev main_v5601 : Ref sig .tc := ⟨.hbm, 6166, rfl⟩
abbrev main_c_559 : Ref sig .tc := ⟨.hbm, 6167, rfl⟩
abbrev main_v5602 : Ref sig .tc := ⟨.hbm, 6168, rfl⟩
abbrev main_v5603 : Ref sig .tc := ⟨.hbm, 6169, rfl⟩
abbrev main_v5604 : Ref sig .tc := ⟨.hbm, 6170, rfl⟩
abbrev main_v5605 : Ref sig .tc := ⟨.hbm, 6171, rfl⟩
abbrev main_v5606 : Ref sig .tc := ⟨.hbm, 6172, rfl⟩
abbrev main_v5607 : Ref sig .tc := ⟨.hbm, 6173, rfl⟩
abbrev main_v5608 : Ref sig .tc := ⟨.hbm, 6174, rfl⟩
abbrev main_v5609 : Ref sig .tc := ⟨.hbm, 6175, rfl⟩
abbrev main_v5610 : Ref sig .tc := ⟨.hbm, 6176, rfl⟩
abbrev main_v5611 : Ref sig .tc := ⟨.hbm, 6177, rfl⟩
abbrev main_v5612 : Ref sig .tc := ⟨.hbm, 6178, rfl⟩
abbrev main_v5613 : Ref sig .tc := ⟨.hbm, 6179, rfl⟩
abbrev main_v5614 : Ref sig .tc := ⟨.hbm, 6180, rfl⟩
abbrev main_v5615 : Ref sig .tc := ⟨.hbm, 6181, rfl⟩
abbrev main_v5616 : Ref sig .tc := ⟨.hbm, 6182, rfl⟩
abbrev main_v5617 : Ref sig .tc := ⟨.hbm, 6183, rfl⟩
abbrev main_v5618 : Ref sig .tc := ⟨.hbm, 6184, rfl⟩
abbrev main_v5619 : Ref sig .tc := ⟨.hbm, 6185, rfl⟩
abbrev main_v5620 : Ref sig .tc := ⟨.hbm, 6186, rfl⟩
abbrev main_cst_560 : Ref sig .tc := ⟨.hbm, 6187, rfl⟩
abbrev main_v5621 : Ref sig .tc := ⟨.hbm, 6188, rfl⟩
abbrev main_c_561 : Ref sig .tc := ⟨.hbm, 6189, rfl⟩
abbrev main_v5622 : Ref sig .tc := ⟨.hbm, 6190, rfl⟩
abbrev main_v5623 : Ref sig .tc := ⟨.hbm, 6191, rfl⟩
abbrev main_v5624 : Ref sig .tc := ⟨.hbm, 6192, rfl⟩
abbrev main_v5625 : Ref sig .tc := ⟨.hbm, 6193, rfl⟩
abbrev main_v5626 : Ref sig .tc := ⟨.hbm, 6194, rfl⟩
abbrev main_v5627 : Ref sig .tc := ⟨.hbm, 6195, rfl⟩
abbrev main_v5628 : Ref sig .tc := ⟨.hbm, 6196, rfl⟩
abbrev main_v5629 : Ref sig .tc := ⟨.hbm, 6197, rfl⟩
abbrev main_v5630 : Ref sig .tc := ⟨.hbm, 6198, rfl⟩
abbrev main_v5631 : Ref sig .tc := ⟨.hbm, 6199, rfl⟩
abbrev main_v5632 : Ref sig .tc := ⟨.hbm, 6200, rfl⟩
abbrev main_v5633 : Ref sig .tc := ⟨.hbm, 6201, rfl⟩
abbrev main_v5634 : Ref sig .tc := ⟨.hbm, 6202, rfl⟩
abbrev main_v5635 : Ref sig .tc := ⟨.hbm, 6203, rfl⟩
abbrev main_v5636 : Ref sig .tc := ⟨.hbm, 6204, rfl⟩
abbrev main_v5637 : Ref sig .tc := ⟨.hbm, 6205, rfl⟩
abbrev main_v5638 : Ref sig .tc := ⟨.hbm, 6206, rfl⟩
abbrev main_v5639 : Ref sig .tc := ⟨.hbm, 6207, rfl⟩
abbrev main_v5640 : Ref sig .tc := ⟨.hbm, 6208, rfl⟩
abbrev main_cst_562 : Ref sig .tc := ⟨.hbm, 6209, rfl⟩
abbrev main_v5641 : Ref sig .tc := ⟨.hbm, 6210, rfl⟩
abbrev main_c_563 : Ref sig .tc := ⟨.hbm, 6211, rfl⟩
abbrev main_v5642 : Ref sig .tc := ⟨.hbm, 6212, rfl⟩
abbrev main_v5643 : Ref sig .tc := ⟨.hbm, 6213, rfl⟩
abbrev main_v5644 : Ref sig .tc := ⟨.hbm, 6214, rfl⟩
abbrev main_v5645 : Ref sig .tc := ⟨.hbm, 6215, rfl⟩
abbrev main_v5646 : Ref sig .tc := ⟨.hbm, 6216, rfl⟩
abbrev main_v5647 : Ref sig .tc := ⟨.hbm, 6217, rfl⟩
abbrev main_v5648 : Ref sig .tc := ⟨.hbm, 6218, rfl⟩
abbrev main_v5649 : Ref sig .tc := ⟨.hbm, 6219, rfl⟩
abbrev main_v5650 : Ref sig .tc := ⟨.hbm, 6220, rfl⟩
abbrev main_v5651 : Ref sig .tc := ⟨.hbm, 6221, rfl⟩
abbrev main_v5652 : Ref sig .tc := ⟨.hbm, 6222, rfl⟩
abbrev main_v5653 : Ref sig .tc := ⟨.hbm, 6223, rfl⟩
abbrev main_v5654 : Ref sig .tc := ⟨.hbm, 6224, rfl⟩
abbrev main_v5655 : Ref sig .tc := ⟨.hbm, 6225, rfl⟩
abbrev main_v5656 : Ref sig .tc := ⟨.hbm, 6226, rfl⟩
abbrev main_v5657 : Ref sig .tc := ⟨.hbm, 6227, rfl⟩
abbrev main_v5658 : Ref sig .tc := ⟨.hbm, 6228, rfl⟩
abbrev main_v5659 : Ref sig .tc := ⟨.hbm, 6229, rfl⟩
abbrev main_v5660 : Ref sig .tc := ⟨.hbm, 6230, rfl⟩
abbrev main_cst_564 : Ref sig .tc := ⟨.hbm, 6231, rfl⟩
abbrev main_v5661 : Ref sig .tc := ⟨.hbm, 6232, rfl⟩
abbrev main_c_565 : Ref sig .tc := ⟨.hbm, 6233, rfl⟩
abbrev main_v5662 : Ref sig .tc := ⟨.hbm, 6234, rfl⟩
abbrev main_v5663 : Ref sig .tc := ⟨.hbm, 6235, rfl⟩
abbrev main_v5664 : Ref sig .tc := ⟨.hbm, 6236, rfl⟩
abbrev main_v5665 : Ref sig .tc := ⟨.hbm, 6237, rfl⟩
abbrev main_v5666 : Ref sig .tc := ⟨.hbm, 6238, rfl⟩
abbrev main_v5667 : Ref sig .tc := ⟨.hbm, 6239, rfl⟩
abbrev main_v5668 : Ref sig .tc := ⟨.hbm, 6240, rfl⟩
abbrev main_v5669 : Ref sig .tc := ⟨.hbm, 6241, rfl⟩
abbrev main_v5670 : Ref sig .tc := ⟨.hbm, 6242, rfl⟩
abbrev main_v5671 : Ref sig .tc := ⟨.hbm, 6243, rfl⟩
abbrev main_v5672 : Ref sig .tc := ⟨.hbm, 6244, rfl⟩
abbrev main_v5673 : Ref sig .tc := ⟨.hbm, 6245, rfl⟩
abbrev main_v5674 : Ref sig .tc := ⟨.hbm, 6246, rfl⟩
abbrev main_v5675 : Ref sig .tc := ⟨.hbm, 6247, rfl⟩
abbrev main_v5676 : Ref sig .tc := ⟨.hbm, 6248, rfl⟩
abbrev main_v5677 : Ref sig .tc := ⟨.hbm, 6249, rfl⟩
abbrev main_v5678 : Ref sig .tc := ⟨.hbm, 6250, rfl⟩
abbrev main_v5679 : Ref sig .tc := ⟨.hbm, 6251, rfl⟩
abbrev main_v5680 : Ref sig .tc := ⟨.hbm, 6252, rfl⟩
abbrev main_cst_566 : Ref sig .tc := ⟨.hbm, 6253, rfl⟩
abbrev main_v5681 : Ref sig .tc := ⟨.hbm, 6254, rfl⟩
abbrev main_c_567 : Ref sig .tc := ⟨.hbm, 6255, rfl⟩
abbrev main_v5682 : Ref sig .tc := ⟨.hbm, 6256, rfl⟩
abbrev main_v5683 : Ref sig .tc := ⟨.hbm, 6257, rfl⟩
abbrev main_v5684 : Ref sig .tc := ⟨.hbm, 6258, rfl⟩
abbrev main_v5685 : Ref sig .tc := ⟨.hbm, 6259, rfl⟩
abbrev main_v5686 : Ref sig .tc := ⟨.hbm, 6260, rfl⟩
abbrev main_v5687 : Ref sig .tc := ⟨.hbm, 6261, rfl⟩
abbrev main_v5688 : Ref sig .tc := ⟨.hbm, 6262, rfl⟩
abbrev main_v5689 : Ref sig .tc := ⟨.hbm, 6263, rfl⟩
abbrev main_v5690 : Ref sig .tc := ⟨.hbm, 6264, rfl⟩
abbrev main_v5691 : Ref sig .tc := ⟨.hbm, 6265, rfl⟩
abbrev main_v5692 : Ref sig .tc := ⟨.hbm, 6266, rfl⟩
abbrev main_v5693 : Ref sig .tc := ⟨.hbm, 6267, rfl⟩
abbrev main_v5694 : Ref sig .tc := ⟨.hbm, 6268, rfl⟩
abbrev main_v5695 : Ref sig .tc := ⟨.hbm, 6269, rfl⟩
abbrev main_v5696 : Ref sig .tc := ⟨.hbm, 6270, rfl⟩
abbrev main_v5697 : Ref sig .tc := ⟨.hbm, 6271, rfl⟩
abbrev main_v5698 : Ref sig .tc := ⟨.hbm, 6272, rfl⟩
abbrev main_v5699 : Ref sig .tc := ⟨.hbm, 6273, rfl⟩
abbrev main_v5700 : Ref sig .tc := ⟨.hbm, 6274, rfl⟩
abbrev main_cst_568 : Ref sig .tc := ⟨.hbm, 6275, rfl⟩
abbrev main_v5701 : Ref sig .tc := ⟨.hbm, 6276, rfl⟩
abbrev main_c_569 : Ref sig .tc := ⟨.hbm, 6277, rfl⟩
abbrev main_v5702 : Ref sig .tc := ⟨.hbm, 6278, rfl⟩
abbrev main_v5703 : Ref sig .tc := ⟨.hbm, 6279, rfl⟩
abbrev main_v5704 : Ref sig .tc := ⟨.hbm, 6280, rfl⟩
abbrev main_v5705 : Ref sig .tc := ⟨.hbm, 6281, rfl⟩
abbrev main_v5706 : Ref sig .tc := ⟨.hbm, 6282, rfl⟩
abbrev main_v5707 : Ref sig .tc := ⟨.hbm, 6283, rfl⟩
abbrev main_v5708 : Ref sig .tc := ⟨.hbm, 6284, rfl⟩
abbrev main_v5709 : Ref sig .tc := ⟨.hbm, 6285, rfl⟩
abbrev main_v5710 : Ref sig .tc := ⟨.hbm, 6286, rfl⟩
abbrev main_v5711 : Ref sig .tc := ⟨.hbm, 6287, rfl⟩
abbrev main_v5712 : Ref sig .tc := ⟨.hbm, 6288, rfl⟩
abbrev main_v5713 : Ref sig .tc := ⟨.hbm, 6289, rfl⟩
abbrev main_v5714 : Ref sig .tc := ⟨.hbm, 6290, rfl⟩
abbrev main_v5715 : Ref sig .tc := ⟨.hbm, 6291, rfl⟩
abbrev main_v5716 : Ref sig .tc := ⟨.hbm, 6292, rfl⟩
abbrev main_v5717 : Ref sig .tc := ⟨.hbm, 6293, rfl⟩
abbrev main_v5718 : Ref sig .tc := ⟨.hbm, 6294, rfl⟩
abbrev main_v5719 : Ref sig .tc := ⟨.hbm, 6295, rfl⟩
abbrev main_v5720 : Ref sig .tc := ⟨.hbm, 6296, rfl⟩
abbrev main_cst_570 : Ref sig .tc := ⟨.hbm, 6297, rfl⟩
abbrev main_v5721 : Ref sig .tc := ⟨.hbm, 6298, rfl⟩
abbrev main_c_571 : Ref sig .tc := ⟨.hbm, 6299, rfl⟩
abbrev main_v5722 : Ref sig .tc := ⟨.hbm, 6300, rfl⟩
abbrev main_v5723 : Ref sig .tc := ⟨.hbm, 6301, rfl⟩
abbrev main_v5724 : Ref sig .tc := ⟨.hbm, 6302, rfl⟩
abbrev main_v5725 : Ref sig .tc := ⟨.hbm, 6303, rfl⟩
abbrev main_v5726 : Ref sig .tc := ⟨.hbm, 6304, rfl⟩
abbrev main_v5727 : Ref sig .tc := ⟨.hbm, 6305, rfl⟩
abbrev main_v5728 : Ref sig .tc := ⟨.hbm, 6306, rfl⟩
abbrev main_v5729 : Ref sig .tc := ⟨.hbm, 6307, rfl⟩
abbrev main_v5730 : Ref sig .tc := ⟨.hbm, 6308, rfl⟩
abbrev main_v5731 : Ref sig .tc := ⟨.hbm, 6309, rfl⟩
abbrev main_v5732 : Ref sig .tc := ⟨.hbm, 6310, rfl⟩
abbrev main_v5733 : Ref sig .tc := ⟨.hbm, 6311, rfl⟩
abbrev main_v5734 : Ref sig .tc := ⟨.hbm, 6312, rfl⟩
abbrev main_v5735 : Ref sig .tc := ⟨.hbm, 6313, rfl⟩
abbrev main_v5736 : Ref sig .tc := ⟨.hbm, 6314, rfl⟩
abbrev main_v5737 : Ref sig .tc := ⟨.hbm, 6315, rfl⟩
abbrev main_v5738 : Ref sig .tc := ⟨.hbm, 6316, rfl⟩
abbrev main_v5739 : Ref sig .tc := ⟨.hbm, 6317, rfl⟩
abbrev main_v5740 : Ref sig .tc := ⟨.hbm, 6318, rfl⟩
abbrev main_cst_572 : Ref sig .tc := ⟨.hbm, 6319, rfl⟩
abbrev main_v5741 : Ref sig .tc := ⟨.hbm, 6320, rfl⟩
abbrev main_c_573 : Ref sig .tc := ⟨.hbm, 6321, rfl⟩
abbrev main_v5742 : Ref sig .tc := ⟨.hbm, 6322, rfl⟩
abbrev main_v5743 : Ref sig .tc := ⟨.hbm, 6323, rfl⟩
abbrev main_v5744 : Ref sig .tc := ⟨.hbm, 6324, rfl⟩
abbrev main_v5745 : Ref sig .tc := ⟨.hbm, 6325, rfl⟩
abbrev main_v5746 : Ref sig .tc := ⟨.hbm, 6326, rfl⟩
abbrev main_v5747 : Ref sig .tc := ⟨.hbm, 6327, rfl⟩
abbrev main_v5748 : Ref sig .tc := ⟨.hbm, 6328, rfl⟩
abbrev main_v5749 : Ref sig .tc := ⟨.hbm, 6329, rfl⟩
abbrev main_v5750 : Ref sig .tc := ⟨.hbm, 6330, rfl⟩
abbrev main_v5751 : Ref sig .tc := ⟨.hbm, 6331, rfl⟩
abbrev main_v5752 : Ref sig .tc := ⟨.hbm, 6332, rfl⟩
abbrev main_v5753 : Ref sig .tc := ⟨.hbm, 6333, rfl⟩
abbrev main_v5754 : Ref sig .tc := ⟨.hbm, 6334, rfl⟩
abbrev main_v5755 : Ref sig .tc := ⟨.hbm, 6335, rfl⟩
abbrev main_v5756 : Ref sig .tc := ⟨.hbm, 6336, rfl⟩
abbrev main_v5757 : Ref sig .tc := ⟨.hbm, 6337, rfl⟩
abbrev main_v5758 : Ref sig .tc := ⟨.hbm, 6338, rfl⟩
abbrev main_v5759 : Ref sig .tc := ⟨.hbm, 6339, rfl⟩
abbrev main_v5760 : Ref sig .tc := ⟨.hbm, 6340, rfl⟩
abbrev main_cst_574 : Ref sig .tc := ⟨.hbm, 6341, rfl⟩
abbrev main_v5761 : Ref sig .tc := ⟨.hbm, 6342, rfl⟩
abbrev main_c_575 : Ref sig .tc := ⟨.hbm, 6343, rfl⟩
abbrev main_v5762 : Ref sig .tc := ⟨.hbm, 6344, rfl⟩
abbrev main_v5763 : Ref sig .tc := ⟨.hbm, 6345, rfl⟩
abbrev main_v5764 : Ref sig .tc := ⟨.hbm, 6346, rfl⟩
abbrev main_v5765 : Ref sig .tc := ⟨.hbm, 6347, rfl⟩
abbrev main_v5766 : Ref sig .tc := ⟨.hbm, 6348, rfl⟩
abbrev main_v5767 : Ref sig .tc := ⟨.hbm, 6349, rfl⟩
abbrev main_v5768 : Ref sig .tc := ⟨.hbm, 6350, rfl⟩
abbrev main_v5769 : Ref sig .tc := ⟨.hbm, 6351, rfl⟩
abbrev main_v5770 : Ref sig .tc := ⟨.hbm, 6352, rfl⟩
abbrev main_v5771 : Ref sig .tc := ⟨.hbm, 6353, rfl⟩
abbrev main_v5772 : Ref sig .tc := ⟨.hbm, 6354, rfl⟩
abbrev main_v5773 : Ref sig .tc := ⟨.hbm, 6355, rfl⟩
abbrev main_v5774 : Ref sig .tc := ⟨.hbm, 6356, rfl⟩
abbrev main_v5775 : Ref sig .tc := ⟨.hbm, 6357, rfl⟩
abbrev main_v5776 : Ref sig .tc := ⟨.hbm, 6358, rfl⟩
abbrev main_v5777 : Ref sig .tc := ⟨.hbm, 6359, rfl⟩
abbrev main_v5778 : Ref sig .tc := ⟨.hbm, 6360, rfl⟩
abbrev main_v5779 : Ref sig .tc := ⟨.hbm, 6361, rfl⟩
abbrev main_v5780 : Ref sig .tc := ⟨.hbm, 6362, rfl⟩
abbrev main_cst_576 : Ref sig .tc := ⟨.hbm, 6363, rfl⟩
abbrev main_v5781 : Ref sig .tc := ⟨.hbm, 6364, rfl⟩
abbrev main_c_577 : Ref sig .tc := ⟨.hbm, 6365, rfl⟩
abbrev main_v5782 : Ref sig .tc := ⟨.hbm, 6366, rfl⟩
abbrev main_v5783 : Ref sig .tc := ⟨.hbm, 6367, rfl⟩
abbrev main_v5784 : Ref sig .tc := ⟨.hbm, 6368, rfl⟩
abbrev main_v5785 : Ref sig .tc := ⟨.hbm, 6369, rfl⟩
abbrev main_v5786 : Ref sig .tc := ⟨.hbm, 6370, rfl⟩
abbrev main_v5787 : Ref sig .tc := ⟨.hbm, 6371, rfl⟩
abbrev main_v5788 : Ref sig .tc := ⟨.hbm, 6372, rfl⟩
abbrev main_v5789 : Ref sig .tc := ⟨.hbm, 6373, rfl⟩
abbrev main_v5790 : Ref sig .tc := ⟨.hbm, 6374, rfl⟩
abbrev main_v5791 : Ref sig .tc := ⟨.hbm, 6375, rfl⟩
abbrev main_v5792 : Ref sig .tc := ⟨.hbm, 6376, rfl⟩
abbrev main_v5793 : Ref sig .tc := ⟨.hbm, 6377, rfl⟩
abbrev main_v5794 : Ref sig .tc := ⟨.hbm, 6378, rfl⟩
abbrev main_v5795 : Ref sig .tc := ⟨.hbm, 6379, rfl⟩
abbrev main_v5796 : Ref sig .tc := ⟨.hbm, 6380, rfl⟩
abbrev main_v5797 : Ref sig .tc := ⟨.hbm, 6381, rfl⟩
abbrev main_v5798 : Ref sig .tc := ⟨.hbm, 6382, rfl⟩
abbrev main_v5799 : Ref sig .tc := ⟨.hbm, 6383, rfl⟩
abbrev main_v5800 : Ref sig .tc := ⟨.hbm, 6384, rfl⟩
abbrev main_cst_578 : Ref sig .tc := ⟨.hbm, 6385, rfl⟩
abbrev main_v5801 : Ref sig .tc := ⟨.hbm, 6386, rfl⟩
abbrev main_c_579 : Ref sig .tc := ⟨.hbm, 6387, rfl⟩
abbrev main_v5802 : Ref sig .tc := ⟨.hbm, 6388, rfl⟩
abbrev main_v5803 : Ref sig .tc := ⟨.hbm, 6389, rfl⟩
abbrev main_v5804 : Ref sig .tc := ⟨.hbm, 6390, rfl⟩
abbrev main_v5805 : Ref sig .tc := ⟨.hbm, 6391, rfl⟩
abbrev main_v5806 : Ref sig .tc := ⟨.hbm, 6392, rfl⟩
abbrev main_v5807 : Ref sig .tc := ⟨.hbm, 6393, rfl⟩
abbrev main_v5808 : Ref sig .tc := ⟨.hbm, 6394, rfl⟩
abbrev main_v5809 : Ref sig .tc := ⟨.hbm, 6395, rfl⟩
abbrev main_v5810 : Ref sig .tc := ⟨.hbm, 6396, rfl⟩
abbrev main_v5811 : Ref sig .tc := ⟨.hbm, 6397, rfl⟩
abbrev main_v5812 : Ref sig .tc := ⟨.hbm, 6398, rfl⟩
abbrev main_v5813 : Ref sig .tc := ⟨.hbm, 6399, rfl⟩
abbrev main_v5814 : Ref sig .tc := ⟨.hbm, 6400, rfl⟩
abbrev main_v5815 : Ref sig .tc := ⟨.hbm, 6401, rfl⟩
abbrev main_v5816 : Ref sig .tc := ⟨.hbm, 6402, rfl⟩
abbrev main_v5817 : Ref sig .tc := ⟨.hbm, 6403, rfl⟩
abbrev main_v5818 : Ref sig .tc := ⟨.hbm, 6404, rfl⟩
abbrev main_v5819 : Ref sig .tc := ⟨.hbm, 6405, rfl⟩
abbrev main_v5820 : Ref sig .tc := ⟨.hbm, 6406, rfl⟩
abbrev main_cst_580 : Ref sig .tc := ⟨.hbm, 6407, rfl⟩
abbrev main_v5821 : Ref sig .tc := ⟨.hbm, 6408, rfl⟩
abbrev main_c_581 : Ref sig .tc := ⟨.hbm, 6409, rfl⟩
abbrev main_v5822 : Ref sig .tc := ⟨.hbm, 6410, rfl⟩
abbrev main_v5823 : Ref sig .tc := ⟨.hbm, 6411, rfl⟩
abbrev main_v5824 : Ref sig .tc := ⟨.hbm, 6412, rfl⟩
abbrev main_v5825 : Ref sig .tc := ⟨.hbm, 6413, rfl⟩
abbrev main_v5826 : Ref sig .tc := ⟨.hbm, 6414, rfl⟩
abbrev main_v5827 : Ref sig .tc := ⟨.hbm, 6415, rfl⟩
abbrev main_v5828 : Ref sig .tc := ⟨.hbm, 6416, rfl⟩
abbrev main_v5829 : Ref sig .tc := ⟨.hbm, 6417, rfl⟩
abbrev main_v5830 : Ref sig .tc := ⟨.hbm, 6418, rfl⟩
abbrev main_v5831 : Ref sig .tc := ⟨.hbm, 6419, rfl⟩
abbrev main_v5832 : Ref sig .tc := ⟨.hbm, 6420, rfl⟩
abbrev main_v5833 : Ref sig .tc := ⟨.hbm, 6421, rfl⟩
abbrev main_v5834 : Ref sig .tc := ⟨.hbm, 6422, rfl⟩
abbrev main_v5835 : Ref sig .tc := ⟨.hbm, 6423, rfl⟩
abbrev main_v5836 : Ref sig .tc := ⟨.hbm, 6424, rfl⟩
abbrev main_v5837 : Ref sig .tc := ⟨.hbm, 6425, rfl⟩
abbrev main_v5838 : Ref sig .tc := ⟨.hbm, 6426, rfl⟩
abbrev main_v5839 : Ref sig .tc := ⟨.hbm, 6427, rfl⟩
abbrev main_v5840 : Ref sig .tc := ⟨.hbm, 6428, rfl⟩
abbrev main_cst_582 : Ref sig .tc := ⟨.hbm, 6429, rfl⟩
abbrev main_v5841 : Ref sig .tc := ⟨.hbm, 6430, rfl⟩
abbrev main_c_583 : Ref sig .tc := ⟨.hbm, 6431, rfl⟩
abbrev main_v5842 : Ref sig .tc := ⟨.hbm, 6432, rfl⟩
abbrev main_v5843 : Ref sig .tc := ⟨.hbm, 6433, rfl⟩
abbrev main_v5844 : Ref sig .tc := ⟨.hbm, 6434, rfl⟩
abbrev main_v5845 : Ref sig .tc := ⟨.hbm, 6435, rfl⟩
abbrev main_v5846 : Ref sig .tc := ⟨.hbm, 6436, rfl⟩
abbrev main_v5847 : Ref sig .tc := ⟨.hbm, 6437, rfl⟩
abbrev main_v5848 : Ref sig .tc := ⟨.hbm, 6438, rfl⟩
abbrev main_v5849 : Ref sig .tc := ⟨.hbm, 6439, rfl⟩
abbrev main_v5850 : Ref sig .tc := ⟨.hbm, 6440, rfl⟩
abbrev main_v5851 : Ref sig .tc := ⟨.hbm, 6441, rfl⟩
abbrev main_v5852 : Ref sig .tc := ⟨.hbm, 6442, rfl⟩
abbrev main_v5853 : Ref sig .tc := ⟨.hbm, 6443, rfl⟩
abbrev main_v5854 : Ref sig .tc := ⟨.hbm, 6444, rfl⟩
abbrev main_v5855 : Ref sig .tc := ⟨.hbm, 6445, rfl⟩
abbrev main_v5856 : Ref sig .tc := ⟨.hbm, 6446, rfl⟩
abbrev main_v5857 : Ref sig .tc := ⟨.hbm, 6447, rfl⟩
abbrev main_v5858 : Ref sig .tc := ⟨.hbm, 6448, rfl⟩
abbrev main_v5859 : Ref sig .tc := ⟨.hbm, 6449, rfl⟩
abbrev main_v5860 : Ref sig .tc := ⟨.hbm, 6450, rfl⟩
abbrev main_cst_584 : Ref sig .tc := ⟨.hbm, 6451, rfl⟩
abbrev main_v5861 : Ref sig .tc := ⟨.hbm, 6452, rfl⟩
abbrev main_c_585 : Ref sig .tc := ⟨.hbm, 6453, rfl⟩
abbrev main_v5862 : Ref sig .tc := ⟨.hbm, 6454, rfl⟩
abbrev main_v5863 : Ref sig .tc := ⟨.hbm, 6455, rfl⟩
abbrev main_v5864 : Ref sig .tc := ⟨.hbm, 6456, rfl⟩
abbrev main_v5865 : Ref sig .tc := ⟨.hbm, 6457, rfl⟩
abbrev main_v5866 : Ref sig .tc := ⟨.hbm, 6458, rfl⟩
abbrev main_v5867 : Ref sig .tc := ⟨.hbm, 6459, rfl⟩
abbrev main_v5868 : Ref sig .tc := ⟨.hbm, 6460, rfl⟩
abbrev main_v5869 : Ref sig .tc := ⟨.hbm, 6461, rfl⟩
abbrev main_v5870 : Ref sig .tc := ⟨.hbm, 6462, rfl⟩
abbrev main_v5871 : Ref sig .tc := ⟨.hbm, 6463, rfl⟩
abbrev main_v5872 : Ref sig .tc := ⟨.hbm, 6464, rfl⟩
abbrev main_v5873 : Ref sig .tc := ⟨.hbm, 6465, rfl⟩
abbrev main_v5874 : Ref sig .tc := ⟨.hbm, 6466, rfl⟩
abbrev main_v5875 : Ref sig .tc := ⟨.hbm, 6467, rfl⟩
abbrev main_v5876 : Ref sig .tc := ⟨.hbm, 6468, rfl⟩
abbrev main_v5877 : Ref sig .tc := ⟨.hbm, 6469, rfl⟩
abbrev main_v5878 : Ref sig .tc := ⟨.hbm, 6470, rfl⟩
abbrev main_v5879 : Ref sig .tc := ⟨.hbm, 6471, rfl⟩
abbrev main_v5880 : Ref sig .tc := ⟨.hbm, 6472, rfl⟩
abbrev main_cst_586 : Ref sig .tc := ⟨.hbm, 6473, rfl⟩
abbrev main_v5881 : Ref sig .tc := ⟨.hbm, 6474, rfl⟩
abbrev main_c_587 : Ref sig .tc := ⟨.hbm, 6475, rfl⟩
abbrev main_v5882 : Ref sig .tc := ⟨.hbm, 6476, rfl⟩
abbrev main_v5883 : Ref sig .tc := ⟨.hbm, 6477, rfl⟩
abbrev main_v5884 : Ref sig .tc := ⟨.hbm, 6478, rfl⟩
abbrev main_v5885 : Ref sig .tc := ⟨.hbm, 6479, rfl⟩
abbrev main_v5886 : Ref sig .tc := ⟨.hbm, 6480, rfl⟩
abbrev main_v5887 : Ref sig .tc := ⟨.hbm, 6481, rfl⟩
abbrev main_v5888 : Ref sig .tc := ⟨.hbm, 6482, rfl⟩
abbrev main_v5889 : Ref sig .tc := ⟨.hbm, 6483, rfl⟩
abbrev main_v5890 : Ref sig .tc := ⟨.hbm, 6484, rfl⟩
abbrev main_v5891 : Ref sig .tc := ⟨.hbm, 6485, rfl⟩
abbrev main_v5892 : Ref sig .tc := ⟨.hbm, 6486, rfl⟩
abbrev main_v5893 : Ref sig .tc := ⟨.hbm, 6487, rfl⟩
abbrev main_v5894 : Ref sig .tc := ⟨.hbm, 6488, rfl⟩
abbrev main_v5895 : Ref sig .tc := ⟨.hbm, 6489, rfl⟩
abbrev main_v5896 : Ref sig .tc := ⟨.hbm, 6490, rfl⟩
abbrev main_v5897 : Ref sig .tc := ⟨.hbm, 6491, rfl⟩
abbrev main_v5898 : Ref sig .tc := ⟨.hbm, 6492, rfl⟩
abbrev main_v5899 : Ref sig .tc := ⟨.hbm, 6493, rfl⟩
abbrev main_v5900 : Ref sig .tc := ⟨.hbm, 6494, rfl⟩
abbrev main_cst_588 : Ref sig .tc := ⟨.hbm, 6495, rfl⟩
abbrev main_v5901 : Ref sig .tc := ⟨.hbm, 6496, rfl⟩
abbrev main_c_589 : Ref sig .tc := ⟨.hbm, 6497, rfl⟩
abbrev main_v5902 : Ref sig .tc := ⟨.hbm, 6498, rfl⟩
abbrev main_v5903 : Ref sig .tc := ⟨.hbm, 6499, rfl⟩
abbrev main_v5904 : Ref sig .tc := ⟨.hbm, 6500, rfl⟩
abbrev main_v5905 : Ref sig .tc := ⟨.hbm, 6501, rfl⟩
abbrev main_v5906 : Ref sig .tc := ⟨.hbm, 6502, rfl⟩
abbrev main_v5907 : Ref sig .tc := ⟨.hbm, 6503, rfl⟩
abbrev main_v5908 : Ref sig .tc := ⟨.hbm, 6504, rfl⟩
abbrev main_v5909 : Ref sig .tc := ⟨.hbm, 6505, rfl⟩
abbrev main_v5910 : Ref sig .tc := ⟨.hbm, 6506, rfl⟩
abbrev main_v5911 : Ref sig .tc := ⟨.hbm, 6507, rfl⟩
abbrev main_v5912 : Ref sig .tc := ⟨.hbm, 6508, rfl⟩
abbrev main_v5913 : Ref sig .tc := ⟨.hbm, 6509, rfl⟩
abbrev main_v5914 : Ref sig .tc := ⟨.hbm, 6510, rfl⟩
abbrev main_v5915 : Ref sig .tc := ⟨.hbm, 6511, rfl⟩
abbrev main_v5916 : Ref sig .tc := ⟨.hbm, 6512, rfl⟩
abbrev main_v5917 : Ref sig .tc := ⟨.hbm, 6513, rfl⟩
abbrev main_v5918 : Ref sig .tc := ⟨.hbm, 6514, rfl⟩
abbrev main_v5919 : Ref sig .tc := ⟨.hbm, 6515, rfl⟩
abbrev main_v5920 : Ref sig .tc := ⟨.hbm, 6516, rfl⟩
abbrev main_cst_590 : Ref sig .tc := ⟨.hbm, 6517, rfl⟩
abbrev main_v5921 : Ref sig .tc := ⟨.hbm, 6518, rfl⟩
abbrev main_c_591 : Ref sig .tc := ⟨.hbm, 6519, rfl⟩
abbrev main_v5922 : Ref sig .tc := ⟨.hbm, 6520, rfl⟩
abbrev main_v5923 : Ref sig .tc := ⟨.hbm, 6521, rfl⟩
abbrev main_v5924 : Ref sig .tc := ⟨.hbm, 6522, rfl⟩
abbrev main_v5925 : Ref sig .tc := ⟨.hbm, 6523, rfl⟩
abbrev main_v5926 : Ref sig .tc := ⟨.hbm, 6524, rfl⟩
abbrev main_v5927 : Ref sig .tc := ⟨.hbm, 6525, rfl⟩
abbrev main_v5928 : Ref sig .tc := ⟨.hbm, 6526, rfl⟩
abbrev main_v5929 : Ref sig .tc := ⟨.hbm, 6527, rfl⟩
abbrev main_v5930 : Ref sig .tc := ⟨.hbm, 6528, rfl⟩
abbrev main_v5931 : Ref sig .tc := ⟨.hbm, 6529, rfl⟩
abbrev main_v5932 : Ref sig .tc := ⟨.hbm, 6530, rfl⟩
abbrev main_v5933 : Ref sig .tc := ⟨.hbm, 6531, rfl⟩
abbrev main_v5934 : Ref sig .tc := ⟨.hbm, 6532, rfl⟩
abbrev main_v5935 : Ref sig .tc := ⟨.hbm, 6533, rfl⟩
abbrev main_v5936 : Ref sig .tc := ⟨.hbm, 6534, rfl⟩
abbrev main_v5937 : Ref sig .tc := ⟨.hbm, 6535, rfl⟩
abbrev main_v5938 : Ref sig .tc := ⟨.hbm, 6536, rfl⟩
abbrev main_v5939 : Ref sig .tc := ⟨.hbm, 6537, rfl⟩
abbrev main_v5940 : Ref sig .tc := ⟨.hbm, 6538, rfl⟩
abbrev main_cst_592 : Ref sig .tc := ⟨.hbm, 6539, rfl⟩
abbrev main_v5941 : Ref sig .tc := ⟨.hbm, 6540, rfl⟩
abbrev main_c_593 : Ref sig .tc := ⟨.hbm, 6541, rfl⟩
abbrev main_v5942 : Ref sig .tc := ⟨.hbm, 6542, rfl⟩
abbrev main_v5943 : Ref sig .tc := ⟨.hbm, 6543, rfl⟩
abbrev main_v5944 : Ref sig .tc := ⟨.hbm, 6544, rfl⟩
abbrev main_v5945 : Ref sig .tc := ⟨.hbm, 6545, rfl⟩
abbrev main_v5946 : Ref sig .tc := ⟨.hbm, 6546, rfl⟩
abbrev main_v5947 : Ref sig .tc := ⟨.hbm, 6547, rfl⟩
abbrev main_v5948 : Ref sig .tc := ⟨.hbm, 6548, rfl⟩
abbrev main_v5949 : Ref sig .tc := ⟨.hbm, 6549, rfl⟩
abbrev main_v5950 : Ref sig .tc := ⟨.hbm, 6550, rfl⟩
abbrev main_v5951 : Ref sig .tc := ⟨.hbm, 6551, rfl⟩
abbrev main_v5952 : Ref sig .tc := ⟨.hbm, 6552, rfl⟩
abbrev main_v5953 : Ref sig .tc := ⟨.hbm, 6553, rfl⟩
abbrev main_v5954 : Ref sig .tc := ⟨.hbm, 6554, rfl⟩
abbrev main_v5955 : Ref sig .tc := ⟨.hbm, 6555, rfl⟩
abbrev main_v5956 : Ref sig .tc := ⟨.hbm, 6556, rfl⟩
abbrev main_v5957 : Ref sig .tc := ⟨.hbm, 6557, rfl⟩
abbrev main_v5958 : Ref sig .tc := ⟨.hbm, 6558, rfl⟩
abbrev main_v5959 : Ref sig .tc := ⟨.hbm, 6559, rfl⟩
abbrev main_v5960 : Ref sig .tc := ⟨.hbm, 6560, rfl⟩
abbrev main_cst_594 : Ref sig .tc := ⟨.hbm, 6561, rfl⟩
abbrev main_v5961 : Ref sig .tc := ⟨.hbm, 6562, rfl⟩
abbrev main_c_595 : Ref sig .tc := ⟨.hbm, 6563, rfl⟩
abbrev main_v5962 : Ref sig .tc := ⟨.hbm, 6564, rfl⟩
abbrev main_v5963 : Ref sig .tc := ⟨.hbm, 6565, rfl⟩
abbrev main_v5964 : Ref sig .tc := ⟨.hbm, 6566, rfl⟩
abbrev main_v5965 : Ref sig .tc := ⟨.hbm, 6567, rfl⟩
abbrev main_v5966 : Ref sig .tc := ⟨.hbm, 6568, rfl⟩
abbrev main_v5967 : Ref sig .tc := ⟨.hbm, 6569, rfl⟩
abbrev main_v5968 : Ref sig .tc := ⟨.hbm, 6570, rfl⟩
abbrev main_v5969 : Ref sig .tc := ⟨.hbm, 6571, rfl⟩
abbrev main_v5970 : Ref sig .tc := ⟨.hbm, 6572, rfl⟩
abbrev main_v5971 : Ref sig .tc := ⟨.hbm, 6573, rfl⟩
abbrev main_v5972 : Ref sig .tc := ⟨.hbm, 6574, rfl⟩
abbrev main_v5973 : Ref sig .tc := ⟨.hbm, 6575, rfl⟩
abbrev main_v5974 : Ref sig .tc := ⟨.hbm, 6576, rfl⟩
abbrev main_v5975 : Ref sig .tc := ⟨.hbm, 6577, rfl⟩
abbrev main_v5976 : Ref sig .tc := ⟨.hbm, 6578, rfl⟩
abbrev main_v5977 : Ref sig .tc := ⟨.hbm, 6579, rfl⟩
abbrev main_v5978 : Ref sig .tc := ⟨.hbm, 6580, rfl⟩
abbrev main_v5979 : Ref sig .tc := ⟨.hbm, 6581, rfl⟩
abbrev main_v5980 : Ref sig .tc := ⟨.hbm, 6582, rfl⟩
abbrev main_cst_596 : Ref sig .tc := ⟨.hbm, 6583, rfl⟩
abbrev main_v5981 : Ref sig .tc := ⟨.hbm, 6584, rfl⟩
abbrev main_c_597 : Ref sig .tc := ⟨.hbm, 6585, rfl⟩
abbrev main_v5982 : Ref sig .tc := ⟨.hbm, 6586, rfl⟩
abbrev main_v5983 : Ref sig .tc := ⟨.hbm, 6587, rfl⟩
abbrev main_v5984 : Ref sig .tc := ⟨.hbm, 6588, rfl⟩
abbrev main_v5985 : Ref sig .tc := ⟨.hbm, 6589, rfl⟩
abbrev main_v5986 : Ref sig .tc := ⟨.hbm, 6590, rfl⟩
abbrev main_v5987 : Ref sig .tc := ⟨.hbm, 6591, rfl⟩
abbrev main_v5988 : Ref sig .tc := ⟨.hbm, 6592, rfl⟩
abbrev main_v5989 : Ref sig .tc := ⟨.hbm, 6593, rfl⟩
abbrev main_v5990 : Ref sig .tc := ⟨.hbm, 6594, rfl⟩
abbrev main_v5991 : Ref sig .tc := ⟨.hbm, 6595, rfl⟩
abbrev main_v5992 : Ref sig .tc := ⟨.hbm, 6596, rfl⟩
abbrev main_v5993 : Ref sig .tc := ⟨.hbm, 6597, rfl⟩
abbrev main_v5994 : Ref sig .tc := ⟨.hbm, 6598, rfl⟩
abbrev main_v5995 : Ref sig .tc := ⟨.hbm, 6599, rfl⟩
abbrev main_v5996 : Ref sig .tc := ⟨.hbm, 6600, rfl⟩
abbrev main_v5997 : Ref sig .tc := ⟨.hbm, 6601, rfl⟩
abbrev main_v5998 : Ref sig .tc := ⟨.hbm, 6602, rfl⟩
abbrev main_v5999 : Ref sig .tc := ⟨.hbm, 6603, rfl⟩
abbrev main_v6000 : Ref sig .tc := ⟨.hbm, 6604, rfl⟩
abbrev main_cst_598 : Ref sig .tc := ⟨.hbm, 6605, rfl⟩
abbrev main_v6001 : Ref sig .tc := ⟨.hbm, 6606, rfl⟩
abbrev main_c_599 : Ref sig .tc := ⟨.hbm, 6607, rfl⟩
abbrev main_v6002 : Ref sig .tc := ⟨.hbm, 6608, rfl⟩
abbrev main_v6003 : Ref sig .tc := ⟨.hbm, 6609, rfl⟩
abbrev main_v6004 : Ref sig .tc := ⟨.hbm, 6610, rfl⟩
abbrev main_v6005 : Ref sig .tc := ⟨.hbm, 6611, rfl⟩
abbrev main_v6006 : Ref sig .tc := ⟨.hbm, 6612, rfl⟩
abbrev main_v6007 : Ref sig .tc := ⟨.hbm, 6613, rfl⟩
abbrev main_v6008 : Ref sig .tc := ⟨.hbm, 6614, rfl⟩
abbrev main_v6009 : Ref sig .tc := ⟨.hbm, 6615, rfl⟩
abbrev main_v6010 : Ref sig .tc := ⟨.hbm, 6616, rfl⟩
abbrev main_v6011 : Ref sig .tc := ⟨.hbm, 6617, rfl⟩
abbrev main_v6012 : Ref sig .tc := ⟨.hbm, 6618, rfl⟩
abbrev main_v6013 : Ref sig .tc := ⟨.hbm, 6619, rfl⟩
abbrev main_v6014 : Ref sig .tc := ⟨.hbm, 6620, rfl⟩
abbrev main_v6015 : Ref sig .tc := ⟨.hbm, 6621, rfl⟩
abbrev main_v6016 : Ref sig .tc := ⟨.hbm, 6622, rfl⟩
abbrev main_v6017 : Ref sig .tc := ⟨.hbm, 6623, rfl⟩
abbrev main_v6018 : Ref sig .tc := ⟨.hbm, 6624, rfl⟩
abbrev main_v6019 : Ref sig .tc := ⟨.hbm, 6625, rfl⟩
abbrev main_v6020 : Ref sig .tc := ⟨.hbm, 6626, rfl⟩
abbrev main_cst_600 : Ref sig .tc := ⟨.hbm, 6627, rfl⟩
abbrev main_v6021 : Ref sig .tc := ⟨.hbm, 6628, rfl⟩
abbrev main_c_601 : Ref sig .tc := ⟨.hbm, 6629, rfl⟩
abbrev main_v6022 : Ref sig .tc := ⟨.hbm, 6630, rfl⟩
abbrev main_v6023 : Ref sig .tc := ⟨.hbm, 6631, rfl⟩
abbrev main_v6024 : Ref sig .tc := ⟨.hbm, 6632, rfl⟩
abbrev main_v6025 : Ref sig .tc := ⟨.hbm, 6633, rfl⟩
abbrev main_v6026 : Ref sig .tc := ⟨.hbm, 6634, rfl⟩
abbrev main_v6027 : Ref sig .tc := ⟨.hbm, 6635, rfl⟩
abbrev main_v6028 : Ref sig .tc := ⟨.hbm, 6636, rfl⟩
abbrev main_v6029 : Ref sig .tc := ⟨.hbm, 6637, rfl⟩
abbrev main_v6030 : Ref sig .tc := ⟨.hbm, 6638, rfl⟩
abbrev main_v6031 : Ref sig .tc := ⟨.hbm, 6639, rfl⟩
abbrev main_v6032 : Ref sig .tc := ⟨.hbm, 6640, rfl⟩
abbrev main_v6033 : Ref sig .tc := ⟨.hbm, 6641, rfl⟩
abbrev main_v6034 : Ref sig .tc := ⟨.hbm, 6642, rfl⟩
abbrev main_v6035 : Ref sig .tc := ⟨.hbm, 6643, rfl⟩
abbrev main_v6036 : Ref sig .tc := ⟨.hbm, 6644, rfl⟩
abbrev main_v6037 : Ref sig .tc := ⟨.hbm, 6645, rfl⟩
abbrev main_v6038 : Ref sig .tc := ⟨.hbm, 6646, rfl⟩
abbrev main_v6039 : Ref sig .tc := ⟨.hbm, 6647, rfl⟩
abbrev main_v6040 : Ref sig .tc := ⟨.hbm, 6648, rfl⟩
abbrev main_cst_602 : Ref sig .tc := ⟨.hbm, 6649, rfl⟩
abbrev main_v6041 : Ref sig .tc := ⟨.hbm, 6650, rfl⟩
abbrev main_c_603 : Ref sig .tc := ⟨.hbm, 6651, rfl⟩
abbrev main_v6042 : Ref sig .tc := ⟨.hbm, 6652, rfl⟩
abbrev main_v6043 : Ref sig .tc := ⟨.hbm, 6653, rfl⟩
abbrev main_v6044 : Ref sig .tc := ⟨.hbm, 6654, rfl⟩
abbrev main_v6045 : Ref sig .tc := ⟨.hbm, 6655, rfl⟩
abbrev main_v6046 : Ref sig .tc := ⟨.hbm, 6656, rfl⟩
abbrev main_v6047 : Ref sig .tc := ⟨.hbm, 6657, rfl⟩
abbrev main_v6048 : Ref sig .tc := ⟨.hbm, 6658, rfl⟩
abbrev main_v6049 : Ref sig .tc := ⟨.hbm, 6659, rfl⟩
abbrev main_v6050 : Ref sig .tc := ⟨.hbm, 6660, rfl⟩
abbrev main_v6051 : Ref sig .tc := ⟨.hbm, 6661, rfl⟩
abbrev main_v6052 : Ref sig .tc := ⟨.hbm, 6662, rfl⟩
abbrev main_v6053 : Ref sig .tc := ⟨.hbm, 6663, rfl⟩
abbrev main_v6054 : Ref sig .tc := ⟨.hbm, 6664, rfl⟩
abbrev main_v6055 : Ref sig .tc := ⟨.hbm, 6665, rfl⟩
abbrev main_v6056 : Ref sig .tc := ⟨.hbm, 6666, rfl⟩
abbrev main_v6057 : Ref sig .tc := ⟨.hbm, 6667, rfl⟩
abbrev main_v6058 : Ref sig .tc := ⟨.hbm, 6668, rfl⟩
abbrev main_v6059 : Ref sig .tc := ⟨.hbm, 6669, rfl⟩
abbrev main_v6060 : Ref sig .tc := ⟨.hbm, 6670, rfl⟩
abbrev main_cst_604 : Ref sig .tc := ⟨.hbm, 6671, rfl⟩
abbrev main_v6061 : Ref sig .tc := ⟨.hbm, 6672, rfl⟩
abbrev main_c_605 : Ref sig .tc := ⟨.hbm, 6673, rfl⟩
abbrev main_v6062 : Ref sig .tc := ⟨.hbm, 6674, rfl⟩
abbrev main_v6063 : Ref sig .tc := ⟨.hbm, 6675, rfl⟩
abbrev main_v6064 : Ref sig .tc := ⟨.hbm, 6676, rfl⟩
abbrev main_v6065 : Ref sig .tc := ⟨.hbm, 6677, rfl⟩
abbrev main_v6066 : Ref sig .tc := ⟨.hbm, 6678, rfl⟩
abbrev main_v6067 : Ref sig .tc := ⟨.hbm, 6679, rfl⟩
abbrev main_v6068 : Ref sig .tc := ⟨.hbm, 6680, rfl⟩
abbrev main_v6069 : Ref sig .tc := ⟨.hbm, 6681, rfl⟩
abbrev main_v6070 : Ref sig .tc := ⟨.hbm, 6682, rfl⟩
abbrev main_v6071 : Ref sig .tc := ⟨.hbm, 6683, rfl⟩
abbrev main_v6072 : Ref sig .tc := ⟨.hbm, 6684, rfl⟩
abbrev main_v6073 : Ref sig .tc := ⟨.hbm, 6685, rfl⟩
abbrev main_v6074 : Ref sig .tc := ⟨.hbm, 6686, rfl⟩
abbrev main_v6075 : Ref sig .tc := ⟨.hbm, 6687, rfl⟩
abbrev main_v6076 : Ref sig .tc := ⟨.hbm, 6688, rfl⟩
abbrev main_v6077 : Ref sig .tc := ⟨.hbm, 6689, rfl⟩
abbrev main_v6078 : Ref sig .tc := ⟨.hbm, 6690, rfl⟩
abbrev main_v6079 : Ref sig .tc := ⟨.hbm, 6691, rfl⟩
abbrev main_v6080 : Ref sig .tc := ⟨.hbm, 6692, rfl⟩
abbrev main_cst_606 : Ref sig .tc := ⟨.hbm, 6693, rfl⟩
abbrev main_v6081 : Ref sig .tc := ⟨.hbm, 6694, rfl⟩
abbrev main_c_607 : Ref sig .tc := ⟨.hbm, 6695, rfl⟩
abbrev main_v6082 : Ref sig .tc := ⟨.hbm, 6696, rfl⟩
abbrev main_v6083 : Ref sig .tc := ⟨.hbm, 6697, rfl⟩
abbrev main_v6084 : Ref sig .tc := ⟨.hbm, 6698, rfl⟩
abbrev main_v6085 : Ref sig .tc := ⟨.hbm, 6699, rfl⟩
abbrev main_v6086 : Ref sig .tc := ⟨.hbm, 6700, rfl⟩
abbrev main_v6087 : Ref sig .tc := ⟨.hbm, 6701, rfl⟩
abbrev main_v6088 : Ref sig .tc := ⟨.hbm, 6702, rfl⟩
abbrev main_v6089 : Ref sig .tc := ⟨.hbm, 6703, rfl⟩
abbrev main_v6090 : Ref sig .tc := ⟨.hbm, 6704, rfl⟩
abbrev main_v6091 : Ref sig .tc := ⟨.hbm, 6705, rfl⟩
abbrev main_v6092 : Ref sig .tc := ⟨.hbm, 6706, rfl⟩
abbrev main_v6093 : Ref sig .tc := ⟨.hbm, 6707, rfl⟩
abbrev main_v6094 : Ref sig .tc := ⟨.hbm, 6708, rfl⟩
abbrev main_v6095 : Ref sig .tc := ⟨.hbm, 6709, rfl⟩
abbrev main_v6096 : Ref sig .tc := ⟨.hbm, 6710, rfl⟩
abbrev main_v6097 : Ref sig .tc := ⟨.hbm, 6711, rfl⟩
abbrev main_v6098 : Ref sig .tc := ⟨.hbm, 6712, rfl⟩
abbrev main_v6099 : Ref sig .tc := ⟨.hbm, 6713, rfl⟩
abbrev main_v6100 : Ref sig .tc := ⟨.hbm, 6714, rfl⟩
abbrev main_cst_608 : Ref sig .tc := ⟨.hbm, 6715, rfl⟩
abbrev main_v6101 : Ref sig .tc := ⟨.hbm, 6716, rfl⟩
abbrev main_c_609 : Ref sig .tc := ⟨.hbm, 6717, rfl⟩
abbrev main_v6102 : Ref sig .tc := ⟨.hbm, 6718, rfl⟩
abbrev main_v6103 : Ref sig .tc := ⟨.hbm, 6719, rfl⟩
abbrev main_v6104 : Ref sig .tc := ⟨.hbm, 6720, rfl⟩
abbrev main_v6105 : Ref sig .tc := ⟨.hbm, 6721, rfl⟩
abbrev main_v6106 : Ref sig .tc := ⟨.hbm, 6722, rfl⟩
abbrev main_v6107 : Ref sig .tc := ⟨.hbm, 6723, rfl⟩
abbrev main_v6108 : Ref sig .tc := ⟨.hbm, 6724, rfl⟩
abbrev main_v6109 : Ref sig .tc := ⟨.hbm, 6725, rfl⟩
abbrev main_v6110 : Ref sig .tc := ⟨.hbm, 6726, rfl⟩
abbrev main_v6111 : Ref sig .tc := ⟨.hbm, 6727, rfl⟩
abbrev main_v6112 : Ref sig .tc := ⟨.hbm, 6728, rfl⟩
abbrev main_v6113 : Ref sig .tc := ⟨.hbm, 6729, rfl⟩
abbrev main_v6114 : Ref sig .tc := ⟨.hbm, 6730, rfl⟩
abbrev main_v6115 : Ref sig .tc := ⟨.hbm, 6731, rfl⟩
abbrev main_v6116 : Ref sig .tc := ⟨.hbm, 6732, rfl⟩
abbrev main_v6117 : Ref sig .tc := ⟨.hbm, 6733, rfl⟩
abbrev main_v6118 : Ref sig .tc := ⟨.hbm, 6734, rfl⟩
abbrev main_v6119 : Ref sig .tc := ⟨.hbm, 6735, rfl⟩
abbrev main_v6120 : Ref sig .tc := ⟨.hbm, 6736, rfl⟩
abbrev main_cst_610 : Ref sig .tc := ⟨.hbm, 6737, rfl⟩
abbrev main_v6121 : Ref sig .tc := ⟨.hbm, 6738, rfl⟩
abbrev main_c_611 : Ref sig .tc := ⟨.hbm, 6739, rfl⟩
abbrev main_v6122 : Ref sig .tc := ⟨.hbm, 6740, rfl⟩
abbrev main_v6123 : Ref sig .tc := ⟨.hbm, 6741, rfl⟩
abbrev main_v6124 : Ref sig .tc := ⟨.hbm, 6742, rfl⟩
abbrev main_v6125 : Ref sig .tc := ⟨.hbm, 6743, rfl⟩
abbrev main_v6126 : Ref sig .tc := ⟨.hbm, 6744, rfl⟩
abbrev main_v6127 : Ref sig .tc := ⟨.hbm, 6745, rfl⟩
abbrev main_v6128 : Ref sig .tc := ⟨.hbm, 6746, rfl⟩
abbrev main_v6129 : Ref sig .tc := ⟨.hbm, 6747, rfl⟩
abbrev main_v6130 : Ref sig .tc := ⟨.hbm, 6748, rfl⟩
abbrev main_v6131 : Ref sig .tc := ⟨.hbm, 6749, rfl⟩
abbrev main_v6132 : Ref sig .tc := ⟨.hbm, 6750, rfl⟩
abbrev main_v6133 : Ref sig .tc := ⟨.hbm, 6751, rfl⟩
abbrev main_v6134 : Ref sig .tc := ⟨.hbm, 6752, rfl⟩
abbrev main_v6135 : Ref sig .tc := ⟨.hbm, 6753, rfl⟩
abbrev main_v6136 : Ref sig .tc := ⟨.hbm, 6754, rfl⟩
abbrev main_v6137 : Ref sig .tc := ⟨.hbm, 6755, rfl⟩
abbrev main_v6138 : Ref sig .tc := ⟨.hbm, 6756, rfl⟩
abbrev main_v6139 : Ref sig .tc := ⟨.hbm, 6757, rfl⟩
abbrev main_v6140 : Ref sig .tc := ⟨.hbm, 6758, rfl⟩
abbrev main_cst_612 : Ref sig .tc := ⟨.hbm, 6759, rfl⟩
abbrev main_v6141 : Ref sig .tc := ⟨.hbm, 6760, rfl⟩
abbrev main_c_613 : Ref sig .tc := ⟨.hbm, 6761, rfl⟩
abbrev main_v6142 : Ref sig .tc := ⟨.hbm, 6762, rfl⟩
abbrev main_v6143 : Ref sig .tc := ⟨.hbm, 6763, rfl⟩
abbrev main_v6144 : Ref sig .tc := ⟨.hbm, 6764, rfl⟩
abbrev main_v6145 : Ref sig .tc := ⟨.hbm, 6765, rfl⟩
abbrev main_v6146 : Ref sig .tc := ⟨.hbm, 6766, rfl⟩
abbrev main_v6147 : Ref sig .tc := ⟨.hbm, 6767, rfl⟩
abbrev main_v6148 : Ref sig .tc := ⟨.hbm, 6768, rfl⟩
abbrev main_v6149 : Ref sig .tc := ⟨.hbm, 6769, rfl⟩
abbrev main_v6150 : Ref sig .tc := ⟨.hbm, 6770, rfl⟩
abbrev main_v6151 : Ref sig .tc := ⟨.hbm, 6771, rfl⟩
abbrev main_v6152 : Ref sig .tc := ⟨.hbm, 6772, rfl⟩
abbrev main_v6153 : Ref sig .tc := ⟨.hbm, 6773, rfl⟩
abbrev main_v6154 : Ref sig .tc := ⟨.hbm, 6774, rfl⟩
abbrev main_v6155 : Ref sig .tc := ⟨.hbm, 6775, rfl⟩
abbrev main_v6156 : Ref sig .tc := ⟨.hbm, 6776, rfl⟩
abbrev main_v6157 : Ref sig .tc := ⟨.hbm, 6777, rfl⟩
abbrev main_v6158 : Ref sig .tc := ⟨.hbm, 6778, rfl⟩
abbrev main_v6159 : Ref sig .tc := ⟨.hbm, 6779, rfl⟩
abbrev main_v6160 : Ref sig .tc := ⟨.hbm, 6780, rfl⟩
abbrev main_cst_614 : Ref sig .tc := ⟨.hbm, 6781, rfl⟩
abbrev main_v6161 : Ref sig .tc := ⟨.hbm, 6782, rfl⟩
abbrev main_c_615 : Ref sig .tc := ⟨.hbm, 6783, rfl⟩
abbrev main_v6162 : Ref sig .tc := ⟨.hbm, 6784, rfl⟩
abbrev main_v6163 : Ref sig .tc := ⟨.hbm, 6785, rfl⟩
abbrev main_v6164 : Ref sig .tc := ⟨.hbm, 6786, rfl⟩
abbrev main_v6165 : Ref sig .tc := ⟨.hbm, 6787, rfl⟩
abbrev main_v6166 : Ref sig .tc := ⟨.hbm, 6788, rfl⟩
abbrev main_v6167 : Ref sig .tc := ⟨.hbm, 6789, rfl⟩
abbrev main_v6168 : Ref sig .tc := ⟨.hbm, 6790, rfl⟩
abbrev main_v6169 : Ref sig .tc := ⟨.hbm, 6791, rfl⟩
abbrev main_v6170 : Ref sig .tc := ⟨.hbm, 6792, rfl⟩
abbrev main_v6171 : Ref sig .tc := ⟨.hbm, 6793, rfl⟩
abbrev main_v6172 : Ref sig .tc := ⟨.hbm, 6794, rfl⟩
abbrev main_v6173 : Ref sig .tc := ⟨.hbm, 6795, rfl⟩
abbrev main_v6174 : Ref sig .tc := ⟨.hbm, 6796, rfl⟩
abbrev main_v6175 : Ref sig .tc := ⟨.hbm, 6797, rfl⟩
abbrev main_v6176 : Ref sig .tc := ⟨.hbm, 6798, rfl⟩
abbrev main_v6177 : Ref sig .tc := ⟨.hbm, 6799, rfl⟩
abbrev main_v6178 : Ref sig .tc := ⟨.hbm, 6800, rfl⟩
abbrev main_v6179 : Ref sig .tc := ⟨.hbm, 6801, rfl⟩
abbrev main_v6180 : Ref sig .tc := ⟨.hbm, 6802, rfl⟩
abbrev main_cst_616 : Ref sig .tc := ⟨.hbm, 6803, rfl⟩
abbrev main_v6181 : Ref sig .tc := ⟨.hbm, 6804, rfl⟩
abbrev main_c_617 : Ref sig .tc := ⟨.hbm, 6805, rfl⟩
abbrev main_v6182 : Ref sig .tc := ⟨.hbm, 6806, rfl⟩
abbrev main_v6183 : Ref sig .tc := ⟨.hbm, 6807, rfl⟩
abbrev main_v6184 : Ref sig .tc := ⟨.hbm, 6808, rfl⟩
abbrev main_v6185 : Ref sig .tc := ⟨.hbm, 6809, rfl⟩
abbrev main_v6186 : Ref sig .tc := ⟨.hbm, 6810, rfl⟩
abbrev main_v6187 : Ref sig .tc := ⟨.hbm, 6811, rfl⟩
abbrev main_v6188 : Ref sig .tc := ⟨.hbm, 6812, rfl⟩
abbrev main_v6189 : Ref sig .tc := ⟨.hbm, 6813, rfl⟩
abbrev main_v6190 : Ref sig .tc := ⟨.hbm, 6814, rfl⟩
abbrev main_v6191 : Ref sig .tc := ⟨.hbm, 6815, rfl⟩
abbrev main_v6192 : Ref sig .tc := ⟨.hbm, 6816, rfl⟩
abbrev main_v6193 : Ref sig .tc := ⟨.hbm, 6817, rfl⟩
abbrev main_v6194 : Ref sig .tc := ⟨.hbm, 6818, rfl⟩
abbrev main_v6195 : Ref sig .tc := ⟨.hbm, 6819, rfl⟩
abbrev main_v6196 : Ref sig .tc := ⟨.hbm, 6820, rfl⟩
abbrev main_v6197 : Ref sig .tc := ⟨.hbm, 6821, rfl⟩
abbrev main_v6198 : Ref sig .tc := ⟨.hbm, 6822, rfl⟩
abbrev main_v6199 : Ref sig .tc := ⟨.hbm, 6823, rfl⟩
abbrev main_v6200 : Ref sig .tc := ⟨.hbm, 6824, rfl⟩
abbrev main_cst_618 : Ref sig .tc := ⟨.hbm, 6825, rfl⟩
abbrev main_v6201 : Ref sig .tc := ⟨.hbm, 6826, rfl⟩
abbrev main_c_619 : Ref sig .tc := ⟨.hbm, 6827, rfl⟩
abbrev main_v6202 : Ref sig .tc := ⟨.hbm, 6828, rfl⟩
abbrev main_v6203 : Ref sig .tc := ⟨.hbm, 6829, rfl⟩
abbrev main_v6204 : Ref sig .tc := ⟨.hbm, 6830, rfl⟩
abbrev main_v6205 : Ref sig .tc := ⟨.hbm, 6831, rfl⟩
abbrev main_v6206 : Ref sig .tc := ⟨.hbm, 6832, rfl⟩
abbrev main_v6207 : Ref sig .tc := ⟨.hbm, 6833, rfl⟩
abbrev main_v6208 : Ref sig .tc := ⟨.hbm, 6834, rfl⟩
abbrev main_v6209 : Ref sig .tc := ⟨.hbm, 6835, rfl⟩
abbrev main_v6210 : Ref sig .tc := ⟨.hbm, 6836, rfl⟩
abbrev main_v6211 : Ref sig .tc := ⟨.hbm, 6837, rfl⟩
abbrev main_v6212 : Ref sig .tc := ⟨.hbm, 6838, rfl⟩
abbrev main_v6213 : Ref sig .tc := ⟨.hbm, 6839, rfl⟩
abbrev main_v6214 : Ref sig .tc := ⟨.hbm, 6840, rfl⟩
abbrev main_v6215 : Ref sig .tc := ⟨.hbm, 6841, rfl⟩
abbrev main_v6216 : Ref sig .tc := ⟨.hbm, 6842, rfl⟩
abbrev main_v6217 : Ref sig .tc := ⟨.hbm, 6843, rfl⟩
abbrev main_v6218 : Ref sig .tc := ⟨.hbm, 6844, rfl⟩
abbrev main_v6219 : Ref sig .tc := ⟨.hbm, 6845, rfl⟩
abbrev main_v6220 : Ref sig .tc := ⟨.hbm, 6846, rfl⟩
abbrev main_cst_620 : Ref sig .tc := ⟨.hbm, 6847, rfl⟩
abbrev main_v6221 : Ref sig .tc := ⟨.hbm, 6848, rfl⟩
abbrev main_c_621 : Ref sig .tc := ⟨.hbm, 6849, rfl⟩
abbrev main_v6222 : Ref sig .tc := ⟨.hbm, 6850, rfl⟩
abbrev main_v6223 : Ref sig .tc := ⟨.hbm, 6851, rfl⟩
abbrev main_v6224 : Ref sig .tc := ⟨.hbm, 6852, rfl⟩
abbrev main_v6225 : Ref sig .tc := ⟨.hbm, 6853, rfl⟩
abbrev main_v6226 : Ref sig .tc := ⟨.hbm, 6854, rfl⟩
abbrev main_v6227 : Ref sig .tc := ⟨.hbm, 6855, rfl⟩
abbrev main_v6228 : Ref sig .tc := ⟨.hbm, 6856, rfl⟩
abbrev main_v6229 : Ref sig .tc := ⟨.hbm, 6857, rfl⟩
abbrev main_v6230 : Ref sig .tc := ⟨.hbm, 6858, rfl⟩
abbrev main_v6231 : Ref sig .tc := ⟨.hbm, 6859, rfl⟩
abbrev main_v6232 : Ref sig .tc := ⟨.hbm, 6860, rfl⟩
abbrev main_v6233 : Ref sig .tc := ⟨.hbm, 6861, rfl⟩
abbrev main_v6234 : Ref sig .tc := ⟨.hbm, 6862, rfl⟩
abbrev main_v6235 : Ref sig .tc := ⟨.hbm, 6863, rfl⟩
abbrev main_v6236 : Ref sig .tc := ⟨.hbm, 6864, rfl⟩
abbrev main_v6237 : Ref sig .tc := ⟨.hbm, 6865, rfl⟩
abbrev main_v6238 : Ref sig .tc := ⟨.hbm, 6866, rfl⟩
abbrev main_v6239 : Ref sig .tc := ⟨.hbm, 6867, rfl⟩
abbrev main_v6240 : Ref sig .tc := ⟨.hbm, 6868, rfl⟩
abbrev main_cst_622 : Ref sig .tc := ⟨.hbm, 6869, rfl⟩
abbrev main_v6241 : Ref sig .tc := ⟨.hbm, 6870, rfl⟩
abbrev main_c_623 : Ref sig .tc := ⟨.hbm, 6871, rfl⟩
abbrev main_v6242 : Ref sig .tc := ⟨.hbm, 6872, rfl⟩
abbrev main_v6243 : Ref sig .tc := ⟨.hbm, 6873, rfl⟩
abbrev main_v6244 : Ref sig .tc := ⟨.hbm, 6874, rfl⟩
abbrev main_v6245 : Ref sig .tc := ⟨.hbm, 6875, rfl⟩
abbrev main_v6246 : Ref sig .tc := ⟨.hbm, 6876, rfl⟩
abbrev main_v6247 : Ref sig .tc := ⟨.hbm, 6877, rfl⟩
abbrev main_v6248 : Ref sig .tc := ⟨.hbm, 6878, rfl⟩
abbrev main_v6249 : Ref sig .tc := ⟨.hbm, 6879, rfl⟩
abbrev main_v6250 : Ref sig .tc := ⟨.hbm, 6880, rfl⟩
abbrev main_v6251 : Ref sig .tc := ⟨.hbm, 6881, rfl⟩
abbrev main_v6252 : Ref sig .tc := ⟨.hbm, 6882, rfl⟩
abbrev main_v6253 : Ref sig .tc := ⟨.hbm, 6883, rfl⟩
abbrev main_v6254 : Ref sig .tc := ⟨.hbm, 6884, rfl⟩
abbrev main_v6255 : Ref sig .tc := ⟨.hbm, 6885, rfl⟩
abbrev main_v6256 : Ref sig .tc := ⟨.hbm, 6886, rfl⟩
abbrev main_v6257 : Ref sig .tc := ⟨.hbm, 6887, rfl⟩
abbrev main_v6258 : Ref sig .tc := ⟨.hbm, 6888, rfl⟩
abbrev main_v6259 : Ref sig .tc := ⟨.hbm, 6889, rfl⟩
abbrev main_v6260 : Ref sig .tc := ⟨.hbm, 6890, rfl⟩
abbrev main_cst_624 : Ref sig .tc := ⟨.hbm, 6891, rfl⟩
abbrev main_v6261 : Ref sig .tc := ⟨.hbm, 6892, rfl⟩
abbrev main_c_625 : Ref sig .tc := ⟨.hbm, 6893, rfl⟩
abbrev main_v6262 : Ref sig .tc := ⟨.hbm, 6894, rfl⟩
abbrev main_v6263 : Ref sig .tc := ⟨.hbm, 6895, rfl⟩
abbrev main_v6264 : Ref sig .tc := ⟨.hbm, 6896, rfl⟩
abbrev main_v6265 : Ref sig .tc := ⟨.hbm, 6897, rfl⟩
abbrev main_v6266 : Ref sig .tc := ⟨.hbm, 6898, rfl⟩
abbrev main_v6267 : Ref sig .tc := ⟨.hbm, 6899, rfl⟩
abbrev main_v6268 : Ref sig .tc := ⟨.hbm, 6900, rfl⟩
abbrev main_v6269 : Ref sig .tc := ⟨.hbm, 6901, rfl⟩
abbrev main_v6270 : Ref sig .tc := ⟨.hbm, 6902, rfl⟩
abbrev main_v6271 : Ref sig .tc := ⟨.hbm, 6903, rfl⟩
abbrev main_v6272 : Ref sig .tc := ⟨.hbm, 6904, rfl⟩
abbrev main_v6273 : Ref sig .tc := ⟨.hbm, 6905, rfl⟩
abbrev main_v6274 : Ref sig .tc := ⟨.hbm, 6906, rfl⟩
abbrev main_v6275 : Ref sig .tc := ⟨.hbm, 6907, rfl⟩
abbrev main_v6276 : Ref sig .tc := ⟨.hbm, 6908, rfl⟩
abbrev main_v6277 : Ref sig .tc := ⟨.hbm, 6909, rfl⟩
abbrev main_v6278 : Ref sig .tc := ⟨.hbm, 6910, rfl⟩
abbrev main_v6279 : Ref sig .tc := ⟨.hbm, 6911, rfl⟩
abbrev main_v6280 : Ref sig .tc := ⟨.hbm, 6912, rfl⟩
abbrev main_cst_626 : Ref sig .tc := ⟨.hbm, 6913, rfl⟩
abbrev main_v6281 : Ref sig .tc := ⟨.hbm, 6914, rfl⟩
abbrev main_c_627 : Ref sig .tc := ⟨.hbm, 6915, rfl⟩
abbrev main_v6282 : Ref sig .tc := ⟨.hbm, 6916, rfl⟩
abbrev main_v6283 : Ref sig .tc := ⟨.hbm, 6917, rfl⟩
abbrev main_v6284 : Ref sig .tc := ⟨.hbm, 6918, rfl⟩
abbrev main_v6285 : Ref sig .tc := ⟨.hbm, 6919, rfl⟩
abbrev main_v6286 : Ref sig .tc := ⟨.hbm, 6920, rfl⟩
abbrev main_v6287 : Ref sig .tc := ⟨.hbm, 6921, rfl⟩
abbrev main_v6288 : Ref sig .tc := ⟨.hbm, 6922, rfl⟩
abbrev main_v6289 : Ref sig .tc := ⟨.hbm, 6923, rfl⟩
abbrev main_v6290 : Ref sig .tc := ⟨.hbm, 6924, rfl⟩
abbrev main_v6291 : Ref sig .tc := ⟨.hbm, 6925, rfl⟩
abbrev main_v6292 : Ref sig .tc := ⟨.hbm, 6926, rfl⟩
abbrev main_v6293 : Ref sig .tc := ⟨.hbm, 6927, rfl⟩
abbrev main_v6294 : Ref sig .tc := ⟨.hbm, 6928, rfl⟩
abbrev main_v6295 : Ref sig .tc := ⟨.hbm, 6929, rfl⟩
abbrev main_v6296 : Ref sig .tc := ⟨.hbm, 6930, rfl⟩
abbrev main_v6297 : Ref sig .tc := ⟨.hbm, 6931, rfl⟩
abbrev main_v6298 : Ref sig .tc := ⟨.hbm, 6932, rfl⟩
abbrev main_v6299 : Ref sig .tc := ⟨.hbm, 6933, rfl⟩
abbrev main_v6300 : Ref sig .tc := ⟨.hbm, 6934, rfl⟩
abbrev main_cst_628 : Ref sig .tc := ⟨.hbm, 6935, rfl⟩
abbrev main_v6301 : Ref sig .tc := ⟨.hbm, 6936, rfl⟩
abbrev main_c_629 : Ref sig .tc := ⟨.hbm, 6937, rfl⟩
abbrev main_v6302 : Ref sig .tc := ⟨.hbm, 6938, rfl⟩
abbrev main_v6303 : Ref sig .tc := ⟨.hbm, 6939, rfl⟩
abbrev main_v6304 : Ref sig .tc := ⟨.hbm, 6940, rfl⟩
abbrev main_v6305 : Ref sig .tc := ⟨.hbm, 6941, rfl⟩
abbrev main_v6306 : Ref sig .tc := ⟨.hbm, 6942, rfl⟩
abbrev main_v6307 : Ref sig .tc := ⟨.hbm, 6943, rfl⟩
abbrev main_v6308 : Ref sig .tc := ⟨.hbm, 6944, rfl⟩
abbrev main_v6309 : Ref sig .tc := ⟨.hbm, 6945, rfl⟩
abbrev main_v6310 : Ref sig .tc := ⟨.hbm, 6946, rfl⟩
abbrev main_v6311 : Ref sig .tc := ⟨.hbm, 6947, rfl⟩
abbrev main_v6312 : Ref sig .tc := ⟨.hbm, 6948, rfl⟩
abbrev main_v6313 : Ref sig .tc := ⟨.hbm, 6949, rfl⟩
abbrev main_v6314 : Ref sig .tc := ⟨.hbm, 6950, rfl⟩
abbrev main_v6315 : Ref sig .tc := ⟨.hbm, 6951, rfl⟩
abbrev main_v6316 : Ref sig .tc := ⟨.hbm, 6952, rfl⟩
abbrev main_v6317 : Ref sig .tc := ⟨.hbm, 6953, rfl⟩
abbrev main_v6318 : Ref sig .tc := ⟨.hbm, 6954, rfl⟩
abbrev main_v6319 : Ref sig .tc := ⟨.hbm, 6955, rfl⟩
abbrev main_v6320 : Ref sig .tc := ⟨.hbm, 6956, rfl⟩
abbrev main_cst_630 : Ref sig .tc := ⟨.hbm, 6957, rfl⟩
abbrev main_v6321 : Ref sig .tc := ⟨.hbm, 6958, rfl⟩
abbrev main_c_631 : Ref sig .tc := ⟨.hbm, 6959, rfl⟩
abbrev main_v6322 : Ref sig .tc := ⟨.hbm, 6960, rfl⟩
abbrev main_v6323 : Ref sig .tc := ⟨.hbm, 6961, rfl⟩
abbrev main_v6324 : Ref sig .tc := ⟨.hbm, 6962, rfl⟩
abbrev main_v6325 : Ref sig .tc := ⟨.hbm, 6963, rfl⟩
abbrev main_v6326 : Ref sig .tc := ⟨.hbm, 6964, rfl⟩
abbrev main_v6327 : Ref sig .tc := ⟨.hbm, 6965, rfl⟩
abbrev main_v6328 : Ref sig .tc := ⟨.hbm, 6966, rfl⟩
abbrev main_v6329 : Ref sig .tc := ⟨.hbm, 6967, rfl⟩
abbrev main_v6330 : Ref sig .tc := ⟨.hbm, 6968, rfl⟩
abbrev main_v6331 : Ref sig .tc := ⟨.hbm, 6969, rfl⟩
abbrev main_v6332 : Ref sig .tc := ⟨.hbm, 6970, rfl⟩
abbrev main_v6333 : Ref sig .tc := ⟨.hbm, 6971, rfl⟩
abbrev main_v6334 : Ref sig .tc := ⟨.hbm, 6972, rfl⟩
abbrev main_v6335 : Ref sig .tc := ⟨.hbm, 6973, rfl⟩
abbrev main_v6336 : Ref sig .tc := ⟨.hbm, 6974, rfl⟩
abbrev main_v6337 : Ref sig .tc := ⟨.hbm, 6975, rfl⟩
abbrev main_v6338 : Ref sig .tc := ⟨.hbm, 6976, rfl⟩
abbrev main_v6339 : Ref sig .tc := ⟨.hbm, 6977, rfl⟩
abbrev main_v6340 : Ref sig .tc := ⟨.hbm, 6978, rfl⟩
abbrev main_cst_632 : Ref sig .tc := ⟨.hbm, 6979, rfl⟩
abbrev main_v6341 : Ref sig .tc := ⟨.hbm, 6980, rfl⟩
abbrev main_c_633 : Ref sig .tc := ⟨.hbm, 6981, rfl⟩
abbrev main_v6342 : Ref sig .tc := ⟨.hbm, 6982, rfl⟩
abbrev main_v6343 : Ref sig .tc := ⟨.hbm, 6983, rfl⟩
abbrev main_v6344 : Ref sig .tc := ⟨.hbm, 6984, rfl⟩
abbrev main_v6345 : Ref sig .tc := ⟨.hbm, 6985, rfl⟩
abbrev main_v6346 : Ref sig .tc := ⟨.hbm, 6986, rfl⟩
abbrev main_v6347 : Ref sig .tc := ⟨.hbm, 6987, rfl⟩
abbrev main_v6348 : Ref sig .tc := ⟨.hbm, 6988, rfl⟩
abbrev main_v6349 : Ref sig .tc := ⟨.hbm, 6989, rfl⟩
abbrev main_v6350 : Ref sig .tc := ⟨.hbm, 6990, rfl⟩
abbrev main_v6351 : Ref sig .tc := ⟨.hbm, 6991, rfl⟩
abbrev main_v6352 : Ref sig .tc := ⟨.hbm, 6992, rfl⟩
abbrev main_v6353 : Ref sig .tc := ⟨.hbm, 6993, rfl⟩
abbrev main_v6354 : Ref sig .tc := ⟨.hbm, 6994, rfl⟩
abbrev main_v6355 : Ref sig .tc := ⟨.hbm, 6995, rfl⟩
abbrev main_v6356 : Ref sig .tc := ⟨.hbm, 6996, rfl⟩
abbrev main_v6357 : Ref sig .tc := ⟨.hbm, 6997, rfl⟩
abbrev main_v6358 : Ref sig .tc := ⟨.hbm, 6998, rfl⟩
abbrev main_v6359 : Ref sig .tc := ⟨.hbm, 6999, rfl⟩
abbrev main_v6360 : Ref sig .tc := ⟨.hbm, 7000, rfl⟩
abbrev main_cst_634 : Ref sig .tc := ⟨.hbm, 7001, rfl⟩
abbrev main_v6361 : Ref sig .tc := ⟨.hbm, 7002, rfl⟩
abbrev main_c_635 : Ref sig .tc := ⟨.hbm, 7003, rfl⟩
abbrev main_v6362 : Ref sig .tc := ⟨.hbm, 7004, rfl⟩
abbrev main_v6363 : Ref sig .tc := ⟨.hbm, 7005, rfl⟩
abbrev main_v6364 : Ref sig .tc := ⟨.hbm, 7006, rfl⟩
abbrev main_v6365 : Ref sig .tc := ⟨.hbm, 7007, rfl⟩
abbrev main_v6366 : Ref sig .tc := ⟨.hbm, 7008, rfl⟩
abbrev main_v6367 : Ref sig .tc := ⟨.hbm, 7009, rfl⟩
abbrev main_v6368 : Ref sig .tc := ⟨.hbm, 7010, rfl⟩
abbrev main_v6369 : Ref sig .tc := ⟨.hbm, 7011, rfl⟩
abbrev main_v6370 : Ref sig .tc := ⟨.hbm, 7012, rfl⟩
abbrev main_v6371 : Ref sig .tc := ⟨.hbm, 7013, rfl⟩
abbrev main_v6372 : Ref sig .tc := ⟨.hbm, 7014, rfl⟩
abbrev main_v6373 : Ref sig .tc := ⟨.hbm, 7015, rfl⟩
abbrev main_v6374 : Ref sig .tc := ⟨.hbm, 7016, rfl⟩
abbrev main_v6375 : Ref sig .tc := ⟨.hbm, 7017, rfl⟩
abbrev main_v6376 : Ref sig .tc := ⟨.hbm, 7018, rfl⟩
abbrev main_v6377 : Ref sig .tc := ⟨.hbm, 7019, rfl⟩
abbrev main_v6378 : Ref sig .tc := ⟨.hbm, 7020, rfl⟩
abbrev main_v6379 : Ref sig .tc := ⟨.hbm, 7021, rfl⟩
abbrev main_v6380 : Ref sig .tc := ⟨.hbm, 7022, rfl⟩
abbrev main_cst_636 : Ref sig .tc := ⟨.hbm, 7023, rfl⟩
abbrev main_v6381 : Ref sig .tc := ⟨.hbm, 7024, rfl⟩
abbrev main_c_637 : Ref sig .tc := ⟨.hbm, 7025, rfl⟩
abbrev main_v6382 : Ref sig .tc := ⟨.hbm, 7026, rfl⟩
abbrev main_v6383 : Ref sig .tc := ⟨.hbm, 7027, rfl⟩
abbrev main_v6384 : Ref sig .tc := ⟨.hbm, 7028, rfl⟩
abbrev main_v6385 : Ref sig .tc := ⟨.hbm, 7029, rfl⟩
abbrev main_v6386 : Ref sig .tc := ⟨.hbm, 7030, rfl⟩
abbrev main_v6387 : Ref sig .tc := ⟨.hbm, 7031, rfl⟩
abbrev main_v6388 : Ref sig .tc := ⟨.hbm, 7032, rfl⟩
abbrev main_v6389 : Ref sig .tc := ⟨.hbm, 7033, rfl⟩
abbrev main_v6390 : Ref sig .tc := ⟨.hbm, 7034, rfl⟩
abbrev main_v6391 : Ref sig .tc := ⟨.hbm, 7035, rfl⟩
abbrev main_v6392 : Ref sig .tc := ⟨.hbm, 7036, rfl⟩
abbrev main_v6393 : Ref sig .tc := ⟨.hbm, 7037, rfl⟩
abbrev main_v6394 : Ref sig .tc := ⟨.hbm, 7038, rfl⟩
abbrev main_v6395 : Ref sig .tc := ⟨.hbm, 7039, rfl⟩
abbrev main_v6396 : Ref sig .tc := ⟨.hbm, 7040, rfl⟩
abbrev main_v6397 : Ref sig .tc := ⟨.hbm, 7041, rfl⟩
abbrev main_v6398 : Ref sig .tc := ⟨.hbm, 7042, rfl⟩
abbrev main_v6399 : Ref sig .tc := ⟨.hbm, 7043, rfl⟩
abbrev main_v6400 : Ref sig .tc := ⟨.hbm, 7044, rfl⟩
abbrev main_cst_638 : Ref sig .tc := ⟨.hbm, 7045, rfl⟩
abbrev main_v6401 : Ref sig .tc := ⟨.hbm, 7046, rfl⟩
abbrev main_c_639 : Ref sig .tc := ⟨.hbm, 7047, rfl⟩
abbrev main_v6402 : Ref sig .tc := ⟨.hbm, 7048, rfl⟩
abbrev main_v6403 : Ref sig .tc := ⟨.hbm, 7049, rfl⟩
abbrev main_v6404 : Ref sig .tc := ⟨.hbm, 7050, rfl⟩
abbrev main_v6405 : Ref sig .tc := ⟨.hbm, 7051, rfl⟩
abbrev main_v6406 : Ref sig .tc := ⟨.hbm, 7052, rfl⟩
abbrev main_v6407 : Ref sig .tc := ⟨.hbm, 7053, rfl⟩
abbrev main_v6408 : Ref sig .tc := ⟨.hbm, 7054, rfl⟩
abbrev main_v6409 : Ref sig .tc := ⟨.hbm, 7055, rfl⟩
abbrev main_v6410 : Ref sig .tc := ⟨.hbm, 7056, rfl⟩
abbrev main_v6411 : Ref sig .tc := ⟨.hbm, 7057, rfl⟩
abbrev main_v6412 : Ref sig .tc := ⟨.hbm, 7058, rfl⟩
abbrev main_v6413 : Ref sig .tc := ⟨.hbm, 7059, rfl⟩
abbrev main_v6414 : Ref sig .tc := ⟨.hbm, 7060, rfl⟩
abbrev main_v6415 : Ref sig .tc := ⟨.hbm, 7061, rfl⟩
abbrev main_v6416 : Ref sig .tc := ⟨.hbm, 7062, rfl⟩
abbrev main_v6417 : Ref sig .tc := ⟨.hbm, 7063, rfl⟩
abbrev main_v6418 : Ref sig .tc := ⟨.hbm, 7064, rfl⟩
abbrev main_v6419 : Ref sig .tc := ⟨.hbm, 7065, rfl⟩
abbrev main_v6420 : Ref sig .tc := ⟨.hbm, 7066, rfl⟩
abbrev main_cst_640 : Ref sig .tc := ⟨.hbm, 7067, rfl⟩
abbrev main_v6421 : Ref sig .tc := ⟨.hbm, 7068, rfl⟩
abbrev main_c_641 : Ref sig .tc := ⟨.hbm, 7069, rfl⟩
abbrev main_v6422 : Ref sig .tc := ⟨.hbm, 7070, rfl⟩
abbrev main_v6423 : Ref sig .tc := ⟨.hbm, 7071, rfl⟩
abbrev main_v6424 : Ref sig .tc := ⟨.hbm, 7072, rfl⟩
abbrev main_v6425 : Ref sig .tc := ⟨.hbm, 7073, rfl⟩
abbrev main_v6426 : Ref sig .tc := ⟨.hbm, 7074, rfl⟩
abbrev main_v6427 : Ref sig .tc := ⟨.hbm, 7075, rfl⟩
abbrev main_v6428 : Ref sig .tc := ⟨.hbm, 7076, rfl⟩
abbrev main_v6429 : Ref sig .tc := ⟨.hbm, 7077, rfl⟩
abbrev main_v6430 : Ref sig .tc := ⟨.hbm, 7078, rfl⟩
abbrev main_v6431 : Ref sig .tc := ⟨.hbm, 7079, rfl⟩
abbrev main_v6432 : Ref sig .tc := ⟨.hbm, 7080, rfl⟩
abbrev main_v6433 : Ref sig .tc := ⟨.hbm, 7081, rfl⟩
abbrev main_v6434 : Ref sig .tc := ⟨.hbm, 7082, rfl⟩
abbrev main_v6435 : Ref sig .tc := ⟨.hbm, 7083, rfl⟩
abbrev main_v6436 : Ref sig .tc := ⟨.hbm, 7084, rfl⟩
abbrev main_v6437 : Ref sig .tc := ⟨.hbm, 7085, rfl⟩
abbrev main_v6438 : Ref sig .tc := ⟨.hbm, 7086, rfl⟩
abbrev main_v6439 : Ref sig .tc := ⟨.hbm, 7087, rfl⟩
abbrev main_v6440 : Ref sig .tc := ⟨.hbm, 7088, rfl⟩
abbrev main_cst_642 : Ref sig .tc := ⟨.hbm, 7089, rfl⟩
abbrev main_v6441 : Ref sig .tc := ⟨.hbm, 7090, rfl⟩
abbrev main_c_643 : Ref sig .tc := ⟨.hbm, 7091, rfl⟩
abbrev main_v6442 : Ref sig .tc := ⟨.hbm, 7092, rfl⟩
abbrev main_v6443 : Ref sig .tc := ⟨.hbm, 7093, rfl⟩
abbrev main_v6444 : Ref sig .tc := ⟨.hbm, 7094, rfl⟩
abbrev main_v6445 : Ref sig .tc := ⟨.hbm, 7095, rfl⟩
abbrev main_v6446 : Ref sig .tc := ⟨.hbm, 7096, rfl⟩
abbrev main_v6447 : Ref sig .tc := ⟨.hbm, 7097, rfl⟩
abbrev main_v6448 : Ref sig .tc := ⟨.hbm, 7098, rfl⟩
abbrev main_v6449 : Ref sig .tc := ⟨.hbm, 7099, rfl⟩
abbrev main_v6450 : Ref sig .tc := ⟨.hbm, 7100, rfl⟩
abbrev main_v6451 : Ref sig .tc := ⟨.hbm, 7101, rfl⟩
abbrev main_v6452 : Ref sig .tc := ⟨.hbm, 7102, rfl⟩
abbrev main_v6453 : Ref sig .tc := ⟨.hbm, 7103, rfl⟩
abbrev main_v6454 : Ref sig .tc := ⟨.hbm, 7104, rfl⟩
abbrev main_v6455 : Ref sig .tc := ⟨.hbm, 7105, rfl⟩
abbrev main_v6456 : Ref sig .tc := ⟨.hbm, 7106, rfl⟩
abbrev main_v6457 : Ref sig .tc := ⟨.hbm, 7107, rfl⟩
abbrev main_v6458 : Ref sig .tc := ⟨.hbm, 7108, rfl⟩
abbrev main_v6459 : Ref sig .tc := ⟨.hbm, 7109, rfl⟩
abbrev main_v6460 : Ref sig .tc := ⟨.hbm, 7110, rfl⟩
abbrev main_cst_644 : Ref sig .tc := ⟨.hbm, 7111, rfl⟩
abbrev main_v6461 : Ref sig .tc := ⟨.hbm, 7112, rfl⟩
abbrev main_c_645 : Ref sig .tc := ⟨.hbm, 7113, rfl⟩
abbrev main_v6462 : Ref sig .tc := ⟨.hbm, 7114, rfl⟩
abbrev main_v6463 : Ref sig .tc := ⟨.hbm, 7115, rfl⟩
abbrev main_v6464 : Ref sig .tc := ⟨.hbm, 7116, rfl⟩
abbrev main_v6465 : Ref sig .tc := ⟨.hbm, 7117, rfl⟩
abbrev main_v6466 : Ref sig .tc := ⟨.hbm, 7118, rfl⟩
abbrev main_v6467 : Ref sig .tc := ⟨.hbm, 7119, rfl⟩
abbrev main_v6468 : Ref sig .tc := ⟨.hbm, 7120, rfl⟩
abbrev main_v6469 : Ref sig .tc := ⟨.hbm, 7121, rfl⟩
abbrev main_v6470 : Ref sig .tc := ⟨.hbm, 7122, rfl⟩
abbrev main_v6471 : Ref sig .tc := ⟨.hbm, 7123, rfl⟩
abbrev main_v6472 : Ref sig .tc := ⟨.hbm, 7124, rfl⟩
abbrev main_v6473 : Ref sig .tc := ⟨.hbm, 7125, rfl⟩
abbrev main_v6474 : Ref sig .tc := ⟨.hbm, 7126, rfl⟩
abbrev main_v6475 : Ref sig .tc := ⟨.hbm, 7127, rfl⟩
abbrev main_v6476 : Ref sig .tc := ⟨.hbm, 7128, rfl⟩
abbrev main_v6477 : Ref sig .tc := ⟨.hbm, 7129, rfl⟩
abbrev main_v6478 : Ref sig .tc := ⟨.hbm, 7130, rfl⟩
abbrev main_v6479 : Ref sig .tc := ⟨.hbm, 7131, rfl⟩
abbrev main_v6480 : Ref sig .tc := ⟨.hbm, 7132, rfl⟩
abbrev main_cst_646 : Ref sig .tc := ⟨.hbm, 7133, rfl⟩
abbrev main_v6481 : Ref sig .tc := ⟨.hbm, 7134, rfl⟩
abbrev main_c_647 : Ref sig .tc := ⟨.hbm, 7135, rfl⟩
abbrev main_v6482 : Ref sig .tc := ⟨.hbm, 7136, rfl⟩
abbrev main_v6483 : Ref sig .tc := ⟨.hbm, 7137, rfl⟩
abbrev main_v6484 : Ref sig .tc := ⟨.hbm, 7138, rfl⟩
abbrev main_v6485 : Ref sig .tc := ⟨.hbm, 7139, rfl⟩
abbrev main_v6486 : Ref sig .tc := ⟨.hbm, 7140, rfl⟩
abbrev main_v6487 : Ref sig .tc := ⟨.hbm, 7141, rfl⟩
abbrev main_v6488 : Ref sig .tc := ⟨.hbm, 7142, rfl⟩
abbrev main_v6489 : Ref sig .tc := ⟨.hbm, 7143, rfl⟩
abbrev main_v6490 : Ref sig .tc := ⟨.hbm, 7144, rfl⟩
abbrev main_v6491 : Ref sig .tc := ⟨.hbm, 7145, rfl⟩
abbrev main_v6492 : Ref sig .tc := ⟨.hbm, 7146, rfl⟩
abbrev main_v6493 : Ref sig .tc := ⟨.hbm, 7147, rfl⟩
abbrev main_v6494 : Ref sig .tc := ⟨.hbm, 7148, rfl⟩
abbrev main_v6495 : Ref sig .tc := ⟨.hbm, 7149, rfl⟩
abbrev main_v6496 : Ref sig .tc := ⟨.hbm, 7150, rfl⟩
abbrev main_v6497 : Ref sig .tc := ⟨.hbm, 7151, rfl⟩
abbrev main_v6498 : Ref sig .tc := ⟨.hbm, 7152, rfl⟩
abbrev main_v6499 : Ref sig .tc := ⟨.hbm, 7153, rfl⟩
abbrev main_v6500 : Ref sig .tc := ⟨.hbm, 7154, rfl⟩
abbrev main_cst_648 : Ref sig .tc := ⟨.hbm, 7155, rfl⟩
abbrev main_v6501 : Ref sig .tc := ⟨.hbm, 7156, rfl⟩
abbrev main_c_649 : Ref sig .tc := ⟨.hbm, 7157, rfl⟩
abbrev main_v6502 : Ref sig .tc := ⟨.hbm, 7158, rfl⟩
abbrev main_v6503 : Ref sig .tc := ⟨.hbm, 7159, rfl⟩
abbrev main_v6504 : Ref sig .tc := ⟨.hbm, 7160, rfl⟩
abbrev main_v6505 : Ref sig .tc := ⟨.hbm, 7161, rfl⟩
abbrev main_v6506 : Ref sig .tc := ⟨.hbm, 7162, rfl⟩
abbrev main_v6507 : Ref sig .tc := ⟨.hbm, 7163, rfl⟩
abbrev main_v6508 : Ref sig .tc := ⟨.hbm, 7164, rfl⟩
abbrev main_v6509 : Ref sig .tc := ⟨.hbm, 7165, rfl⟩
abbrev main_v6510 : Ref sig .tc := ⟨.hbm, 7166, rfl⟩
abbrev main_v6511 : Ref sig .tc := ⟨.hbm, 7167, rfl⟩
abbrev main_v6512 : Ref sig .tc := ⟨.hbm, 7168, rfl⟩
abbrev main_v6513 : Ref sig .tc := ⟨.hbm, 7169, rfl⟩
abbrev main_v6514 : Ref sig .tc := ⟨.hbm, 7170, rfl⟩
abbrev main_v6515 : Ref sig .tc := ⟨.hbm, 7171, rfl⟩
abbrev main_v6516 : Ref sig .tc := ⟨.hbm, 7172, rfl⟩
abbrev main_v6517 : Ref sig .tc := ⟨.hbm, 7173, rfl⟩
abbrev main_v6518 : Ref sig .tc := ⟨.hbm, 7174, rfl⟩
abbrev main_v6519 : Ref sig .tc := ⟨.hbm, 7175, rfl⟩
abbrev main_v6520 : Ref sig .tc := ⟨.hbm, 7176, rfl⟩
abbrev main_cst_650 : Ref sig .tc := ⟨.hbm, 7177, rfl⟩
abbrev main_v6521 : Ref sig .tc := ⟨.hbm, 7178, rfl⟩
abbrev main_c_651 : Ref sig .tc := ⟨.hbm, 7179, rfl⟩
abbrev main_v6522 : Ref sig .tc := ⟨.hbm, 7180, rfl⟩
abbrev main_v6523 : Ref sig .tc := ⟨.hbm, 7181, rfl⟩
abbrev main_v6524 : Ref sig .tc := ⟨.hbm, 7182, rfl⟩
abbrev main_v6525 : Ref sig .tc := ⟨.hbm, 7183, rfl⟩
abbrev main_v6526 : Ref sig .tc := ⟨.hbm, 7184, rfl⟩
abbrev main_v6527 : Ref sig .tc := ⟨.hbm, 7185, rfl⟩
abbrev main_v6528 : Ref sig .tc := ⟨.hbm, 7186, rfl⟩
abbrev main_v6529 : Ref sig .tc := ⟨.hbm, 7187, rfl⟩
abbrev main_v6530 : Ref sig .tc := ⟨.hbm, 7188, rfl⟩
abbrev main_v6531 : Ref sig .tc := ⟨.hbm, 7189, rfl⟩
abbrev main_v6532 : Ref sig .tc := ⟨.hbm, 7190, rfl⟩
abbrev main_v6533 : Ref sig .tc := ⟨.hbm, 7191, rfl⟩
abbrev main_v6534 : Ref sig .tc := ⟨.hbm, 7192, rfl⟩
abbrev main_v6535 : Ref sig .tc := ⟨.hbm, 7193, rfl⟩
abbrev main_v6536 : Ref sig .tc := ⟨.hbm, 7194, rfl⟩
abbrev main_v6537 : Ref sig .tc := ⟨.hbm, 7195, rfl⟩
abbrev main_v6538 : Ref sig .tc := ⟨.hbm, 7196, rfl⟩
abbrev main_v6539 : Ref sig .tc := ⟨.hbm, 7197, rfl⟩
abbrev main_v6540 : Ref sig .tc := ⟨.hbm, 7198, rfl⟩
abbrev main_cst_652 : Ref sig .tc := ⟨.hbm, 7199, rfl⟩
abbrev main_v6541 : Ref sig .tc := ⟨.hbm, 7200, rfl⟩
abbrev main_c_653 : Ref sig .tc := ⟨.hbm, 7201, rfl⟩
abbrev main_v6542 : Ref sig .tc := ⟨.hbm, 7202, rfl⟩
abbrev main_v6543 : Ref sig .tc := ⟨.hbm, 7203, rfl⟩
abbrev main_v6544 : Ref sig .tc := ⟨.hbm, 7204, rfl⟩
abbrev main_v6545 : Ref sig .tc := ⟨.hbm, 7205, rfl⟩
abbrev main_v6546 : Ref sig .tc := ⟨.hbm, 7206, rfl⟩
abbrev main_v6547 : Ref sig .tc := ⟨.hbm, 7207, rfl⟩
abbrev main_v6548 : Ref sig .tc := ⟨.hbm, 7208, rfl⟩
abbrev main_v6549 : Ref sig .tc := ⟨.hbm, 7209, rfl⟩
abbrev main_v6550 : Ref sig .tc := ⟨.hbm, 7210, rfl⟩
abbrev main_v6551 : Ref sig .tc := ⟨.hbm, 7211, rfl⟩
abbrev main_v6552 : Ref sig .tc := ⟨.hbm, 7212, rfl⟩
abbrev main_v6553 : Ref sig .tc := ⟨.hbm, 7213, rfl⟩
abbrev main_v6554 : Ref sig .tc := ⟨.hbm, 7214, rfl⟩
abbrev main_v6555 : Ref sig .tc := ⟨.hbm, 7215, rfl⟩
abbrev main_v6556 : Ref sig .tc := ⟨.hbm, 7216, rfl⟩
abbrev main_v6557 : Ref sig .tc := ⟨.hbm, 7217, rfl⟩
abbrev main_v6558 : Ref sig .tc := ⟨.hbm, 7218, rfl⟩
abbrev main_v6559 : Ref sig .tc := ⟨.hbm, 7219, rfl⟩
abbrev main_v6560 : Ref sig .tc := ⟨.hbm, 7220, rfl⟩
abbrev main_cst_654 : Ref sig .tc := ⟨.hbm, 7221, rfl⟩
abbrev main_v6561 : Ref sig .tc := ⟨.hbm, 7222, rfl⟩
abbrev main_c_655 : Ref sig .tc := ⟨.hbm, 7223, rfl⟩
abbrev main_v6562 : Ref sig .tc := ⟨.hbm, 7224, rfl⟩
abbrev main_v6563 : Ref sig .tc := ⟨.hbm, 7225, rfl⟩
abbrev main_v6564 : Ref sig .tc := ⟨.hbm, 7226, rfl⟩
abbrev main_v6565 : Ref sig .tc := ⟨.hbm, 7227, rfl⟩
abbrev main_v6566 : Ref sig .tc := ⟨.hbm, 7228, rfl⟩
abbrev main_v6567 : Ref sig .tc := ⟨.hbm, 7229, rfl⟩
abbrev main_v6568 : Ref sig .tc := ⟨.hbm, 7230, rfl⟩
abbrev main_v6569 : Ref sig .tc := ⟨.hbm, 7231, rfl⟩
abbrev main_v6570 : Ref sig .tc := ⟨.hbm, 7232, rfl⟩
abbrev main_v6571 : Ref sig .tc := ⟨.hbm, 7233, rfl⟩
abbrev main_v6572 : Ref sig .tc := ⟨.hbm, 7234, rfl⟩
abbrev main_v6573 : Ref sig .tc := ⟨.hbm, 7235, rfl⟩
abbrev main_v6574 : Ref sig .tc := ⟨.hbm, 7236, rfl⟩
abbrev main_v6575 : Ref sig .tc := ⟨.hbm, 7237, rfl⟩
abbrev main_v6576 : Ref sig .tc := ⟨.hbm, 7238, rfl⟩
abbrev main_v6577 : Ref sig .tc := ⟨.hbm, 7239, rfl⟩
abbrev main_v6578 : Ref sig .tc := ⟨.hbm, 7240, rfl⟩
abbrev main_v6579 : Ref sig .tc := ⟨.hbm, 7241, rfl⟩
abbrev main_v6580 : Ref sig .tc := ⟨.hbm, 7242, rfl⟩
abbrev main_cst_656 : Ref sig .tc := ⟨.hbm, 7243, rfl⟩
abbrev main_v6581 : Ref sig .tc := ⟨.hbm, 7244, rfl⟩
abbrev main_c_657 : Ref sig .tc := ⟨.hbm, 7245, rfl⟩
abbrev main_v6582 : Ref sig .tc := ⟨.hbm, 7246, rfl⟩
abbrev main_v6583 : Ref sig .tc := ⟨.hbm, 7247, rfl⟩
abbrev main_v6584 : Ref sig .tc := ⟨.hbm, 7248, rfl⟩
abbrev main_v6585 : Ref sig .tc := ⟨.hbm, 7249, rfl⟩
abbrev main_v6586 : Ref sig .tc := ⟨.hbm, 7250, rfl⟩
abbrev main_v6587 : Ref sig .tc := ⟨.hbm, 7251, rfl⟩
abbrev main_v6588 : Ref sig .tc := ⟨.hbm, 7252, rfl⟩
abbrev main_v6589 : Ref sig .tc := ⟨.hbm, 7253, rfl⟩
abbrev main_v6590 : Ref sig .tc := ⟨.hbm, 7254, rfl⟩
abbrev main_v6591 : Ref sig .tc := ⟨.hbm, 7255, rfl⟩
abbrev main_v6592 : Ref sig .tc := ⟨.hbm, 7256, rfl⟩
abbrev main_v6593 : Ref sig .tc := ⟨.hbm, 7257, rfl⟩
abbrev main_v6594 : Ref sig .tc := ⟨.hbm, 7258, rfl⟩
abbrev main_v6595 : Ref sig .tc := ⟨.hbm, 7259, rfl⟩
abbrev main_v6596 : Ref sig .tc := ⟨.hbm, 7260, rfl⟩
abbrev main_v6597 : Ref sig .tc := ⟨.hbm, 7261, rfl⟩
abbrev main_v6598 : Ref sig .tc := ⟨.hbm, 7262, rfl⟩
abbrev main_v6599 : Ref sig .tc := ⟨.hbm, 7263, rfl⟩
abbrev main_v6600 : Ref sig .tc := ⟨.hbm, 7264, rfl⟩
abbrev main_cst_658 : Ref sig .tc := ⟨.hbm, 7265, rfl⟩
abbrev main_v6601 : Ref sig .tc := ⟨.hbm, 7266, rfl⟩
abbrev main_c_659 : Ref sig .tc := ⟨.hbm, 7267, rfl⟩
abbrev main_v6602 : Ref sig .tc := ⟨.hbm, 7268, rfl⟩
abbrev main_v6603 : Ref sig .tc := ⟨.hbm, 7269, rfl⟩
abbrev main_v6604 : Ref sig .tc := ⟨.hbm, 7270, rfl⟩
abbrev main_v6605 : Ref sig .tc := ⟨.hbm, 7271, rfl⟩
abbrev main_v6606 : Ref sig .tc := ⟨.hbm, 7272, rfl⟩
abbrev main_v6607 : Ref sig .tc := ⟨.hbm, 7273, rfl⟩
abbrev main_v6608 : Ref sig .tc := ⟨.hbm, 7274, rfl⟩
abbrev main_v6609 : Ref sig .tc := ⟨.hbm, 7275, rfl⟩
abbrev main_v6610 : Ref sig .tc := ⟨.hbm, 7276, rfl⟩
abbrev main_v6611 : Ref sig .tc := ⟨.hbm, 7277, rfl⟩
abbrev main_v6612 : Ref sig .tc := ⟨.hbm, 7278, rfl⟩
abbrev main_v6613 : Ref sig .tc := ⟨.hbm, 7279, rfl⟩
abbrev main_v6614 : Ref sig .tc := ⟨.hbm, 7280, rfl⟩
abbrev main_v6615 : Ref sig .tc := ⟨.hbm, 7281, rfl⟩
abbrev main_v6616 : Ref sig .tc := ⟨.hbm, 7282, rfl⟩
abbrev main_v6617 : Ref sig .tc := ⟨.hbm, 7283, rfl⟩
abbrev main_v6618 : Ref sig .tc := ⟨.hbm, 7284, rfl⟩
abbrev main_v6619 : Ref sig .tc := ⟨.hbm, 7285, rfl⟩
abbrev main_v6620 : Ref sig .tc := ⟨.hbm, 7286, rfl⟩
abbrev main_cst_660 : Ref sig .tc := ⟨.hbm, 7287, rfl⟩
abbrev main_v6621 : Ref sig .tc := ⟨.hbm, 7288, rfl⟩
abbrev main_c_661 : Ref sig .tc := ⟨.hbm, 7289, rfl⟩
abbrev main_v6622 : Ref sig .tc := ⟨.hbm, 7290, rfl⟩
abbrev main_v6623 : Ref sig .tc := ⟨.hbm, 7291, rfl⟩
abbrev main_v6624 : Ref sig .tc := ⟨.hbm, 7292, rfl⟩
abbrev main_v6625 : Ref sig .tc := ⟨.hbm, 7293, rfl⟩
abbrev main_v6626 : Ref sig .tc := ⟨.hbm, 7294, rfl⟩
abbrev main_v6627 : Ref sig .tc := ⟨.hbm, 7295, rfl⟩
abbrev main_v6628 : Ref sig .tc := ⟨.hbm, 7296, rfl⟩
abbrev main_v6629 : Ref sig .tc := ⟨.hbm, 7297, rfl⟩
abbrev main_v6630 : Ref sig .tc := ⟨.hbm, 7298, rfl⟩
abbrev main_v6631 : Ref sig .tc := ⟨.hbm, 7299, rfl⟩
abbrev main_v6632 : Ref sig .tc := ⟨.hbm, 7300, rfl⟩
abbrev main_v6633 : Ref sig .tc := ⟨.hbm, 7301, rfl⟩
abbrev main_v6634 : Ref sig .tc := ⟨.hbm, 7302, rfl⟩
abbrev main_v6635 : Ref sig .tc := ⟨.hbm, 7303, rfl⟩
abbrev main_v6636 : Ref sig .tc := ⟨.hbm, 7304, rfl⟩
abbrev main_v6637 : Ref sig .tc := ⟨.hbm, 7305, rfl⟩
abbrev main_v6638 : Ref sig .tc := ⟨.hbm, 7306, rfl⟩
abbrev main_v6639 : Ref sig .tc := ⟨.hbm, 7307, rfl⟩
abbrev main_v6640 : Ref sig .tc := ⟨.hbm, 7308, rfl⟩
abbrev main_cst_662 : Ref sig .tc := ⟨.hbm, 7309, rfl⟩
abbrev main_v6641 : Ref sig .tc := ⟨.hbm, 7310, rfl⟩
abbrev main_c_663 : Ref sig .tc := ⟨.hbm, 7311, rfl⟩
abbrev main_v6642 : Ref sig .tc := ⟨.hbm, 7312, rfl⟩
abbrev main_v6643 : Ref sig .tc := ⟨.hbm, 7313, rfl⟩
abbrev main_v6644 : Ref sig .tc := ⟨.hbm, 7314, rfl⟩
abbrev main_v6645 : Ref sig .tc := ⟨.hbm, 7315, rfl⟩
abbrev main_v6646 : Ref sig .tc := ⟨.hbm, 7316, rfl⟩
abbrev main_v6647 : Ref sig .tc := ⟨.hbm, 7317, rfl⟩
abbrev main_v6648 : Ref sig .tc := ⟨.hbm, 7318, rfl⟩
abbrev main_v6649 : Ref sig .tc := ⟨.hbm, 7319, rfl⟩
abbrev main_v6650 : Ref sig .tc := ⟨.hbm, 7320, rfl⟩
abbrev main_v6651 : Ref sig .tc := ⟨.hbm, 7321, rfl⟩
abbrev main_v6652 : Ref sig .tc := ⟨.hbm, 7322, rfl⟩
abbrev main_v6653 : Ref sig .tc := ⟨.hbm, 7323, rfl⟩
abbrev main_v6654 : Ref sig .tc := ⟨.hbm, 7324, rfl⟩
abbrev main_v6655 : Ref sig .tc := ⟨.hbm, 7325, rfl⟩
abbrev main_v6656 : Ref sig .tc := ⟨.hbm, 7326, rfl⟩
abbrev main_v6657 : Ref sig .tc := ⟨.hbm, 7327, rfl⟩
abbrev main_v6658 : Ref sig .tc := ⟨.hbm, 7328, rfl⟩
abbrev main_v6659 : Ref sig .tc := ⟨.hbm, 7329, rfl⟩
abbrev main_v6660 : Ref sig .tc := ⟨.hbm, 7330, rfl⟩
abbrev main_cst_664 : Ref sig .tc := ⟨.hbm, 7331, rfl⟩
abbrev main_v6661 : Ref sig .tc := ⟨.hbm, 7332, rfl⟩
abbrev main_c_665 : Ref sig .tc := ⟨.hbm, 7333, rfl⟩
abbrev main_v6662 : Ref sig .tc := ⟨.hbm, 7334, rfl⟩
abbrev main_v6663 : Ref sig .tc := ⟨.hbm, 7335, rfl⟩
abbrev main_v6664 : Ref sig .tc := ⟨.hbm, 7336, rfl⟩
abbrev main_v6665 : Ref sig .tc := ⟨.hbm, 7337, rfl⟩
abbrev main_v6666 : Ref sig .tc := ⟨.hbm, 7338, rfl⟩
abbrev main_v6667 : Ref sig .tc := ⟨.hbm, 7339, rfl⟩
abbrev main_v6668 : Ref sig .tc := ⟨.hbm, 7340, rfl⟩
abbrev main_v6669 : Ref sig .tc := ⟨.hbm, 7341, rfl⟩
abbrev main_v6670 : Ref sig .tc := ⟨.hbm, 7342, rfl⟩
abbrev main_v6671 : Ref sig .tc := ⟨.hbm, 7343, rfl⟩
abbrev main_v6672 : Ref sig .tc := ⟨.hbm, 7344, rfl⟩
abbrev main_v6673 : Ref sig .tc := ⟨.hbm, 7345, rfl⟩
abbrev main_v6674 : Ref sig .tc := ⟨.hbm, 7346, rfl⟩
abbrev main_v6675 : Ref sig .tc := ⟨.hbm, 7347, rfl⟩
abbrev main_v6676 : Ref sig .tc := ⟨.hbm, 7348, rfl⟩
abbrev main_v6677 : Ref sig .tc := ⟨.hbm, 7349, rfl⟩
abbrev main_v6678 : Ref sig .tc := ⟨.hbm, 7350, rfl⟩
abbrev main_v6679 : Ref sig .tc := ⟨.hbm, 7351, rfl⟩
abbrev main_v6680 : Ref sig .tc := ⟨.hbm, 7352, rfl⟩
abbrev main_cst_666 : Ref sig .tc := ⟨.hbm, 7353, rfl⟩
abbrev main_v6681 : Ref sig .tc := ⟨.hbm, 7354, rfl⟩
abbrev main_c_667 : Ref sig .tc := ⟨.hbm, 7355, rfl⟩
abbrev main_v6682 : Ref sig .tc := ⟨.hbm, 7356, rfl⟩
abbrev main_v6683 : Ref sig .tc := ⟨.hbm, 7357, rfl⟩
abbrev main_v6684 : Ref sig .tc := ⟨.hbm, 7358, rfl⟩
abbrev main_v6685 : Ref sig .tc := ⟨.hbm, 7359, rfl⟩
abbrev main_v6686 : Ref sig .tc := ⟨.hbm, 7360, rfl⟩
abbrev main_v6687 : Ref sig .tc := ⟨.hbm, 7361, rfl⟩
abbrev main_v6688 : Ref sig .tc := ⟨.hbm, 7362, rfl⟩
abbrev main_v6689 : Ref sig .tc := ⟨.hbm, 7363, rfl⟩
abbrev main_v6690 : Ref sig .tc := ⟨.hbm, 7364, rfl⟩
abbrev main_v6691 : Ref sig .tc := ⟨.hbm, 7365, rfl⟩
abbrev main_v6692 : Ref sig .tc := ⟨.hbm, 7366, rfl⟩
abbrev main_v6693 : Ref sig .tc := ⟨.hbm, 7367, rfl⟩
abbrev main_v6694 : Ref sig .tc := ⟨.hbm, 7368, rfl⟩
abbrev main_v6695 : Ref sig .tc := ⟨.hbm, 7369, rfl⟩
abbrev main_v6696 : Ref sig .tc := ⟨.hbm, 7370, rfl⟩
abbrev main_v6697 : Ref sig .tc := ⟨.hbm, 7371, rfl⟩
abbrev main_v6698 : Ref sig .tc := ⟨.hbm, 7372, rfl⟩
abbrev main_v6699 : Ref sig .tc := ⟨.hbm, 7373, rfl⟩
abbrev main_v6700 : Ref sig .tc := ⟨.hbm, 7374, rfl⟩
abbrev main_cst_668 : Ref sig .tc := ⟨.hbm, 7375, rfl⟩
abbrev main_v6701 : Ref sig .tc := ⟨.hbm, 7376, rfl⟩
abbrev main_c_669 : Ref sig .tc := ⟨.hbm, 7377, rfl⟩
abbrev main_v6702 : Ref sig .tc := ⟨.hbm, 7378, rfl⟩
abbrev main_v6703 : Ref sig .tc := ⟨.hbm, 7379, rfl⟩
abbrev main_v6704 : Ref sig .tc := ⟨.hbm, 7380, rfl⟩
abbrev main_v6705 : Ref sig .tc := ⟨.hbm, 7381, rfl⟩
abbrev main_v6706 : Ref sig .tc := ⟨.hbm, 7382, rfl⟩
abbrev main_v6707 : Ref sig .tc := ⟨.hbm, 7383, rfl⟩
abbrev main_v6708 : Ref sig .tc := ⟨.hbm, 7384, rfl⟩
abbrev main_v6709 : Ref sig .tc := ⟨.hbm, 7385, rfl⟩
abbrev main_v6710 : Ref sig .tc := ⟨.hbm, 7386, rfl⟩
abbrev main_v6711 : Ref sig .tc := ⟨.hbm, 7387, rfl⟩
abbrev main_v6712 : Ref sig .tc := ⟨.hbm, 7388, rfl⟩
abbrev main_v6713 : Ref sig .tc := ⟨.hbm, 7389, rfl⟩
abbrev main_v6714 : Ref sig .tc := ⟨.hbm, 7390, rfl⟩
abbrev main_v6715 : Ref sig .tc := ⟨.hbm, 7391, rfl⟩
abbrev main_v6716 : Ref sig .tc := ⟨.hbm, 7392, rfl⟩
abbrev main_v6717 : Ref sig .tc := ⟨.hbm, 7393, rfl⟩
abbrev main_v6718 : Ref sig .tc := ⟨.hbm, 7394, rfl⟩
abbrev main_v6719 : Ref sig .tc := ⟨.hbm, 7395, rfl⟩
abbrev main_v6720 : Ref sig .tc := ⟨.hbm, 7396, rfl⟩
abbrev main_cst_670 : Ref sig .tc := ⟨.hbm, 7397, rfl⟩
abbrev main_v6721 : Ref sig .tc := ⟨.hbm, 7398, rfl⟩
abbrev main_c_671 : Ref sig .tc := ⟨.hbm, 7399, rfl⟩
abbrev main_v6722 : Ref sig .tc := ⟨.hbm, 7400, rfl⟩
abbrev main_v6723 : Ref sig .tc := ⟨.hbm, 7401, rfl⟩
abbrev main_v6724 : Ref sig .tc := ⟨.hbm, 7402, rfl⟩
abbrev main_v6725 : Ref sig .tc := ⟨.hbm, 7403, rfl⟩
abbrev main_v6726 : Ref sig .tc := ⟨.hbm, 7404, rfl⟩
abbrev main_v6727 : Ref sig .tc := ⟨.hbm, 7405, rfl⟩
abbrev main_v6728 : Ref sig .tc := ⟨.hbm, 7406, rfl⟩
abbrev main_v6729 : Ref sig .tc := ⟨.hbm, 7407, rfl⟩
abbrev main_v6730 : Ref sig .tc := ⟨.hbm, 7408, rfl⟩
abbrev main_v6731 : Ref sig .tc := ⟨.hbm, 7409, rfl⟩
abbrev main_v6732 : Ref sig .tc := ⟨.hbm, 7410, rfl⟩
abbrev main_v6733 : Ref sig .tc := ⟨.hbm, 7411, rfl⟩
abbrev main_v6734 : Ref sig .tc := ⟨.hbm, 7412, rfl⟩
abbrev main_v6735 : Ref sig .tc := ⟨.hbm, 7413, rfl⟩
abbrev main_v6736 : Ref sig .tc := ⟨.hbm, 7414, rfl⟩
abbrev main_v6737 : Ref sig .tc := ⟨.hbm, 7415, rfl⟩
abbrev main_v6738 : Ref sig .tc := ⟨.hbm, 7416, rfl⟩
abbrev main_v6739 : Ref sig .tc := ⟨.hbm, 7417, rfl⟩
abbrev main_v6740 : Ref sig .tc := ⟨.hbm, 7418, rfl⟩
abbrev main_cst_672 : Ref sig .tc := ⟨.hbm, 7419, rfl⟩
abbrev main_v6741 : Ref sig .tc := ⟨.hbm, 7420, rfl⟩
abbrev main_c_673 : Ref sig .tc := ⟨.hbm, 7421, rfl⟩
abbrev main_v6742 : Ref sig .tc := ⟨.hbm, 7422, rfl⟩
abbrev main_v6743 : Ref sig .tc := ⟨.hbm, 7423, rfl⟩
abbrev main_v6744 : Ref sig .tc := ⟨.hbm, 7424, rfl⟩
abbrev main_v6745 : Ref sig .tc := ⟨.hbm, 7425, rfl⟩
abbrev main_v6746 : Ref sig .tc := ⟨.hbm, 7426, rfl⟩
abbrev main_v6747 : Ref sig .tc := ⟨.hbm, 7427, rfl⟩
abbrev main_v6748 : Ref sig .tc := ⟨.hbm, 7428, rfl⟩
abbrev main_v6749 : Ref sig .tc := ⟨.hbm, 7429, rfl⟩
abbrev main_v6750 : Ref sig .tc := ⟨.hbm, 7430, rfl⟩
abbrev main_v6751 : Ref sig .tc := ⟨.hbm, 7431, rfl⟩
abbrev main_v6752 : Ref sig .tc := ⟨.hbm, 7432, rfl⟩
abbrev main_v6753 : Ref sig .tc := ⟨.hbm, 7433, rfl⟩
abbrev main_v6754 : Ref sig .tc := ⟨.hbm, 7434, rfl⟩
abbrev main_v6755 : Ref sig .tc := ⟨.hbm, 7435, rfl⟩
abbrev main_v6756 : Ref sig .tc := ⟨.hbm, 7436, rfl⟩
abbrev main_v6757 : Ref sig .tc := ⟨.hbm, 7437, rfl⟩
abbrev main_v6758 : Ref sig .tc := ⟨.hbm, 7438, rfl⟩
abbrev main_v6759 : Ref sig .tc := ⟨.hbm, 7439, rfl⟩
abbrev main_v6760 : Ref sig .tc := ⟨.hbm, 7440, rfl⟩
abbrev main_cst_674 : Ref sig .tc := ⟨.hbm, 7441, rfl⟩
abbrev main_v6761 : Ref sig .tc := ⟨.hbm, 7442, rfl⟩
abbrev main_c_675 : Ref sig .tc := ⟨.hbm, 7443, rfl⟩
abbrev main_v6762 : Ref sig .tc := ⟨.hbm, 7444, rfl⟩
abbrev main_v6763 : Ref sig .tc := ⟨.hbm, 7445, rfl⟩
abbrev main_v6764 : Ref sig .tc := ⟨.hbm, 7446, rfl⟩
abbrev main_v6765 : Ref sig .tc := ⟨.hbm, 7447, rfl⟩
abbrev main_v6766 : Ref sig .tc := ⟨.hbm, 7448, rfl⟩
abbrev main_v6767 : Ref sig .tc := ⟨.hbm, 7449, rfl⟩
abbrev main_v6768 : Ref sig .tc := ⟨.hbm, 7450, rfl⟩
abbrev main_v6769 : Ref sig .tc := ⟨.hbm, 7451, rfl⟩
abbrev main_v6770 : Ref sig .tc := ⟨.hbm, 7452, rfl⟩
abbrev main_v6771 : Ref sig .tc := ⟨.hbm, 7453, rfl⟩
abbrev main_v6772 : Ref sig .tc := ⟨.hbm, 7454, rfl⟩
abbrev main_v6773 : Ref sig .tc := ⟨.hbm, 7455, rfl⟩
abbrev main_v6774 : Ref sig .tc := ⟨.hbm, 7456, rfl⟩
abbrev main_v6775 : Ref sig .tc := ⟨.hbm, 7457, rfl⟩
abbrev main_v6776 : Ref sig .tc := ⟨.hbm, 7458, rfl⟩
abbrev main_v6777 : Ref sig .tc := ⟨.hbm, 7459, rfl⟩
abbrev main_v6778 : Ref sig .tc := ⟨.hbm, 7460, rfl⟩
abbrev main_v6779 : Ref sig .tc := ⟨.hbm, 7461, rfl⟩
abbrev main_v6780 : Ref sig .tc := ⟨.hbm, 7462, rfl⟩
abbrev main_cst_676 : Ref sig .tc := ⟨.hbm, 7463, rfl⟩
abbrev main_v6781 : Ref sig .tc := ⟨.hbm, 7464, rfl⟩
abbrev main_c_677 : Ref sig .tc := ⟨.hbm, 7465, rfl⟩
abbrev main_v6782 : Ref sig .tc := ⟨.hbm, 7466, rfl⟩
abbrev main_v6783 : Ref sig .tc := ⟨.hbm, 7467, rfl⟩
abbrev main_v6784 : Ref sig .tc := ⟨.hbm, 7468, rfl⟩
abbrev main_v6785 : Ref sig .tc := ⟨.hbm, 7469, rfl⟩
abbrev main_v6786 : Ref sig .tc := ⟨.hbm, 7470, rfl⟩
abbrev main_v6787 : Ref sig .tc := ⟨.hbm, 7471, rfl⟩
abbrev main_v6788 : Ref sig .tc := ⟨.hbm, 7472, rfl⟩
abbrev main_v6789 : Ref sig .tc := ⟨.hbm, 7473, rfl⟩
abbrev main_v6790 : Ref sig .tc := ⟨.hbm, 7474, rfl⟩
abbrev main_v6791 : Ref sig .tc := ⟨.hbm, 7475, rfl⟩
abbrev main_v6792 : Ref sig .tc := ⟨.hbm, 7476, rfl⟩
abbrev main_v6793 : Ref sig .tc := ⟨.hbm, 7477, rfl⟩
abbrev main_v6794 : Ref sig .tc := ⟨.hbm, 7478, rfl⟩
abbrev main_v6795 : Ref sig .tc := ⟨.hbm, 7479, rfl⟩
abbrev main_v6796 : Ref sig .tc := ⟨.hbm, 7480, rfl⟩
abbrev main_v6797 : Ref sig .tc := ⟨.hbm, 7481, rfl⟩
abbrev main_v6798 : Ref sig .tc := ⟨.hbm, 7482, rfl⟩
abbrev main_v6799 : Ref sig .tc := ⟨.hbm, 7483, rfl⟩
abbrev main_v6800 : Ref sig .tc := ⟨.hbm, 7484, rfl⟩
abbrev main_cst_678 : Ref sig .tc := ⟨.hbm, 7485, rfl⟩
abbrev main_v6801 : Ref sig .tc := ⟨.hbm, 7486, rfl⟩
abbrev main_c_679 : Ref sig .tc := ⟨.hbm, 7487, rfl⟩
abbrev main_v6802 : Ref sig .tc := ⟨.hbm, 7488, rfl⟩
abbrev main_v6803 : Ref sig .tc := ⟨.hbm, 7489, rfl⟩
abbrev main_v6804 : Ref sig .tc := ⟨.hbm, 7490, rfl⟩
abbrev main_v6805 : Ref sig .tc := ⟨.hbm, 7491, rfl⟩
abbrev main_v6806 : Ref sig .tc := ⟨.hbm, 7492, rfl⟩
abbrev main_v6807 : Ref sig .tc := ⟨.hbm, 7493, rfl⟩
abbrev main_v6808 : Ref sig .tc := ⟨.hbm, 7494, rfl⟩
abbrev main_v6809 : Ref sig .tc := ⟨.hbm, 7495, rfl⟩
abbrev main_v6810 : Ref sig .tc := ⟨.hbm, 7496, rfl⟩
abbrev main_v6811 : Ref sig .tc := ⟨.hbm, 7497, rfl⟩
abbrev main_v6812 : Ref sig .tc := ⟨.hbm, 7498, rfl⟩
abbrev main_v6813 : Ref sig .tc := ⟨.hbm, 7499, rfl⟩
abbrev main_v6814 : Ref sig .tc := ⟨.hbm, 7500, rfl⟩
abbrev main_v6815 : Ref sig .tc := ⟨.hbm, 7501, rfl⟩
abbrev main_v6816 : Ref sig .tc := ⟨.hbm, 7502, rfl⟩
abbrev main_v6817 : Ref sig .tc := ⟨.hbm, 7503, rfl⟩
abbrev main_v6818 : Ref sig .tc := ⟨.hbm, 7504, rfl⟩
abbrev main_v6819 : Ref sig .tc := ⟨.hbm, 7505, rfl⟩
abbrev main_v6820 : Ref sig .tc := ⟨.hbm, 7506, rfl⟩
abbrev main_cst_680 : Ref sig .tc := ⟨.hbm, 7507, rfl⟩
abbrev main_v6821 : Ref sig .tc := ⟨.hbm, 7508, rfl⟩
abbrev main_c_681 : Ref sig .tc := ⟨.hbm, 7509, rfl⟩
abbrev main_v6822 : Ref sig .tc := ⟨.hbm, 7510, rfl⟩
abbrev main_v6823 : Ref sig .tc := ⟨.hbm, 7511, rfl⟩
abbrev main_v6824 : Ref sig .tc := ⟨.hbm, 7512, rfl⟩
abbrev main_v6825 : Ref sig .tc := ⟨.hbm, 7513, rfl⟩
abbrev main_v6826 : Ref sig .tc := ⟨.hbm, 7514, rfl⟩
abbrev main_v6827 : Ref sig .tc := ⟨.hbm, 7515, rfl⟩
abbrev main_v6828 : Ref sig .tc := ⟨.hbm, 7516, rfl⟩
abbrev main_v6829 : Ref sig .tc := ⟨.hbm, 7517, rfl⟩
abbrev main_v6830 : Ref sig .tc := ⟨.hbm, 7518, rfl⟩
abbrev main_v6831 : Ref sig .tc := ⟨.hbm, 7519, rfl⟩
abbrev main_v6832 : Ref sig .tc := ⟨.hbm, 7520, rfl⟩
abbrev main_v6833 : Ref sig .tc := ⟨.hbm, 7521, rfl⟩
abbrev main_v6834 : Ref sig .tc := ⟨.hbm, 7522, rfl⟩
abbrev main_v6835 : Ref sig .tc := ⟨.hbm, 7523, rfl⟩
abbrev main_v6836 : Ref sig .tc := ⟨.hbm, 7524, rfl⟩
abbrev main_v6837 : Ref sig .tc := ⟨.hbm, 7525, rfl⟩
abbrev main_v6838 : Ref sig .tc := ⟨.hbm, 7526, rfl⟩
abbrev main_v6839 : Ref sig .tc := ⟨.hbm, 7527, rfl⟩
abbrev main_v6840 : Ref sig .tc := ⟨.hbm, 7528, rfl⟩
abbrev main_cst_682 : Ref sig .tc := ⟨.hbm, 7529, rfl⟩
abbrev main_v6841 : Ref sig .tc := ⟨.hbm, 7530, rfl⟩
abbrev main_c_683 : Ref sig .tc := ⟨.hbm, 7531, rfl⟩
abbrev main_v6842 : Ref sig .tc := ⟨.hbm, 7532, rfl⟩
abbrev main_v6843 : Ref sig .tc := ⟨.hbm, 7533, rfl⟩
abbrev main_v6844 : Ref sig .tc := ⟨.hbm, 7534, rfl⟩
abbrev main_v6845 : Ref sig .tc := ⟨.hbm, 7535, rfl⟩
abbrev main_v6846 : Ref sig .tc := ⟨.hbm, 7536, rfl⟩
abbrev main_v6847 : Ref sig .tc := ⟨.hbm, 7537, rfl⟩
abbrev main_v6848 : Ref sig .tc := ⟨.hbm, 7538, rfl⟩
abbrev main_v6849 : Ref sig .tc := ⟨.hbm, 7539, rfl⟩
abbrev main_v6850 : Ref sig .tc := ⟨.hbm, 7540, rfl⟩
abbrev main_v6851 : Ref sig .tc := ⟨.hbm, 7541, rfl⟩
abbrev main_v6852 : Ref sig .tc := ⟨.hbm, 7542, rfl⟩
abbrev main_v6853 : Ref sig .tc := ⟨.hbm, 7543, rfl⟩
abbrev main_v6854 : Ref sig .tc := ⟨.hbm, 7544, rfl⟩
abbrev main_v6855 : Ref sig .tc := ⟨.hbm, 7545, rfl⟩
abbrev main_v6856 : Ref sig .tc := ⟨.hbm, 7546, rfl⟩
abbrev main_v6857 : Ref sig .tc := ⟨.hbm, 7547, rfl⟩
abbrev main_v6858 : Ref sig .tc := ⟨.hbm, 7548, rfl⟩
abbrev main_v6859 : Ref sig .tc := ⟨.hbm, 7549, rfl⟩
abbrev main_v6860 : Ref sig .tc := ⟨.hbm, 7550, rfl⟩
abbrev main_cst_684 : Ref sig .tc := ⟨.hbm, 7551, rfl⟩
abbrev main_v6861 : Ref sig .tc := ⟨.hbm, 7552, rfl⟩
abbrev main_c_685 : Ref sig .tc := ⟨.hbm, 7553, rfl⟩
abbrev main_v6862 : Ref sig .tc := ⟨.hbm, 7554, rfl⟩
abbrev main_v6863 : Ref sig .tc := ⟨.hbm, 7555, rfl⟩
abbrev main_v6864 : Ref sig .tc := ⟨.hbm, 7556, rfl⟩
abbrev main_v6865 : Ref sig .tc := ⟨.hbm, 7557, rfl⟩
abbrev main_v6866 : Ref sig .tc := ⟨.hbm, 7558, rfl⟩
abbrev main_v6867 : Ref sig .tc := ⟨.hbm, 7559, rfl⟩
abbrev main_v6868 : Ref sig .tc := ⟨.hbm, 7560, rfl⟩
abbrev main_v6869 : Ref sig .tc := ⟨.hbm, 7561, rfl⟩
abbrev main_v6870 : Ref sig .tc := ⟨.hbm, 7562, rfl⟩
abbrev main_v6871 : Ref sig .tc := ⟨.hbm, 7563, rfl⟩
abbrev main_v6872 : Ref sig .tc := ⟨.hbm, 7564, rfl⟩
abbrev main_v6873 : Ref sig .tc := ⟨.hbm, 7565, rfl⟩
abbrev main_v6874 : Ref sig .tc := ⟨.hbm, 7566, rfl⟩
abbrev main_v6875 : Ref sig .tc := ⟨.hbm, 7567, rfl⟩
abbrev main_v6876 : Ref sig .tc := ⟨.hbm, 7568, rfl⟩
abbrev main_v6877 : Ref sig .tc := ⟨.hbm, 7569, rfl⟩
abbrev main_v6878 : Ref sig .tc := ⟨.hbm, 7570, rfl⟩
abbrev main_v6879 : Ref sig .tc := ⟨.hbm, 7571, rfl⟩
abbrev main_v6880 : Ref sig .tc := ⟨.hbm, 7572, rfl⟩
abbrev main_cst_686 : Ref sig .tc := ⟨.hbm, 7573, rfl⟩
abbrev main_v6881 : Ref sig .tc := ⟨.hbm, 7574, rfl⟩
abbrev main_c_687 : Ref sig .tc := ⟨.hbm, 7575, rfl⟩
abbrev main_v6882 : Ref sig .tc := ⟨.hbm, 7576, rfl⟩
abbrev main_v6883 : Ref sig .tc := ⟨.hbm, 7577, rfl⟩
abbrev main_v6884 : Ref sig .tc := ⟨.hbm, 7578, rfl⟩
abbrev main_v6885 : Ref sig .tc := ⟨.hbm, 7579, rfl⟩
abbrev main_v6886 : Ref sig .tc := ⟨.hbm, 7580, rfl⟩
abbrev main_v6887 : Ref sig .tc := ⟨.hbm, 7581, rfl⟩
abbrev main_v6888 : Ref sig .tc := ⟨.hbm, 7582, rfl⟩
abbrev main_v6889 : Ref sig .tc := ⟨.hbm, 7583, rfl⟩
abbrev main_v6890 : Ref sig .tc := ⟨.hbm, 7584, rfl⟩
abbrev main_v6891 : Ref sig .tc := ⟨.hbm, 7585, rfl⟩
abbrev main_v6892 : Ref sig .tc := ⟨.hbm, 7586, rfl⟩
abbrev main_v6893 : Ref sig .tc := ⟨.hbm, 7587, rfl⟩
abbrev main_v6894 : Ref sig .tc := ⟨.hbm, 7588, rfl⟩
abbrev main_v6895 : Ref sig .tc := ⟨.hbm, 7589, rfl⟩
abbrev main_v6896 : Ref sig .tc := ⟨.hbm, 7590, rfl⟩
abbrev main_v6897 : Ref sig .tc := ⟨.hbm, 7591, rfl⟩
abbrev main_v6898 : Ref sig .tc := ⟨.hbm, 7592, rfl⟩
abbrev main_v6899 : Ref sig .tc := ⟨.hbm, 7593, rfl⟩
abbrev main_v6900 : Ref sig .tc := ⟨.hbm, 7594, rfl⟩
abbrev main_cst_688 : Ref sig .tc := ⟨.hbm, 7595, rfl⟩
abbrev main_v6901 : Ref sig .tc := ⟨.hbm, 7596, rfl⟩
abbrev main_c_689 : Ref sig .tc := ⟨.hbm, 7597, rfl⟩
abbrev main_v6902 : Ref sig .tc := ⟨.hbm, 7598, rfl⟩
abbrev main_v6903 : Ref sig .tc := ⟨.hbm, 7599, rfl⟩
abbrev main_v6904 : Ref sig .tc := ⟨.hbm, 7600, rfl⟩
abbrev main_v6905 : Ref sig .tc := ⟨.hbm, 7601, rfl⟩
abbrev main_v6906 : Ref sig .tc := ⟨.hbm, 7602, rfl⟩
abbrev main_v6907 : Ref sig .tc := ⟨.hbm, 7603, rfl⟩
abbrev main_v6908 : Ref sig .tc := ⟨.hbm, 7604, rfl⟩
abbrev main_v6909 : Ref sig .tc := ⟨.hbm, 7605, rfl⟩
abbrev main_v6910 : Ref sig .tc := ⟨.hbm, 7606, rfl⟩
abbrev main_v6911 : Ref sig .tc := ⟨.hbm, 7607, rfl⟩
abbrev main_v6912 : Ref sig .tc := ⟨.hbm, 7608, rfl⟩
abbrev main_v6913 : Ref sig .tc := ⟨.hbm, 7609, rfl⟩
abbrev main_v6914 : Ref sig .tc := ⟨.hbm, 7610, rfl⟩
abbrev main_v6915 : Ref sig .tc := ⟨.hbm, 7611, rfl⟩
abbrev main_v6916 : Ref sig .tc := ⟨.hbm, 7612, rfl⟩
abbrev main_v6917 : Ref sig .tc := ⟨.hbm, 7613, rfl⟩
abbrev main_v6918 : Ref sig .tc := ⟨.hbm, 7614, rfl⟩
abbrev main_v6919 : Ref sig .tc := ⟨.hbm, 7615, rfl⟩
abbrev main_v6920 : Ref sig .tc := ⟨.hbm, 7616, rfl⟩
abbrev main_cst_690 : Ref sig .tc := ⟨.hbm, 7617, rfl⟩
abbrev main_v6921 : Ref sig .tc := ⟨.hbm, 7618, rfl⟩
abbrev main_c_691 : Ref sig .tc := ⟨.hbm, 7619, rfl⟩
abbrev main_v6922 : Ref sig .tc := ⟨.hbm, 7620, rfl⟩
abbrev main_v6923 : Ref sig .tc := ⟨.hbm, 7621, rfl⟩
abbrev main_v6924 : Ref sig .tc := ⟨.hbm, 7622, rfl⟩
abbrev main_v6925 : Ref sig .tc := ⟨.hbm, 7623, rfl⟩
abbrev main_v6926 : Ref sig .tc := ⟨.hbm, 7624, rfl⟩
abbrev main_v6927 : Ref sig .tc := ⟨.hbm, 7625, rfl⟩
abbrev main_v6928 : Ref sig .tc := ⟨.hbm, 7626, rfl⟩
abbrev main_v6929 : Ref sig .tc := ⟨.hbm, 7627, rfl⟩
abbrev main_v6930 : Ref sig .tc := ⟨.hbm, 7628, rfl⟩
abbrev main_v6931 : Ref sig .tc := ⟨.hbm, 7629, rfl⟩
abbrev main_v6932 : Ref sig .tc := ⟨.hbm, 7630, rfl⟩
abbrev main_v6933 : Ref sig .tc := ⟨.hbm, 7631, rfl⟩
abbrev main_v6934 : Ref sig .tc := ⟨.hbm, 7632, rfl⟩
abbrev main_v6935 : Ref sig .tc := ⟨.hbm, 7633, rfl⟩
abbrev main_v6936 : Ref sig .tc := ⟨.hbm, 7634, rfl⟩
abbrev main_v6937 : Ref sig .tc := ⟨.hbm, 7635, rfl⟩
abbrev main_v6938 : Ref sig .tc := ⟨.hbm, 7636, rfl⟩
abbrev main_v6939 : Ref sig .tc := ⟨.hbm, 7637, rfl⟩
abbrev main_v6940 : Ref sig .tc := ⟨.hbm, 7638, rfl⟩
abbrev main_cst_692 : Ref sig .tc := ⟨.hbm, 7639, rfl⟩
abbrev main_v6941 : Ref sig .tc := ⟨.hbm, 7640, rfl⟩
abbrev main_c_693 : Ref sig .tc := ⟨.hbm, 7641, rfl⟩
abbrev main_v6942 : Ref sig .tc := ⟨.hbm, 7642, rfl⟩
abbrev main_v6943 : Ref sig .tc := ⟨.hbm, 7643, rfl⟩
abbrev main_v6944 : Ref sig .tc := ⟨.hbm, 7644, rfl⟩
abbrev main_v6945 : Ref sig .tc := ⟨.hbm, 7645, rfl⟩
abbrev main_v6946 : Ref sig .tc := ⟨.hbm, 7646, rfl⟩
abbrev main_v6947 : Ref sig .tc := ⟨.hbm, 7647, rfl⟩
abbrev main_v6948 : Ref sig .tc := ⟨.hbm, 7648, rfl⟩
abbrev main_v6949 : Ref sig .tc := ⟨.hbm, 7649, rfl⟩
abbrev main_v6950 : Ref sig .tc := ⟨.hbm, 7650, rfl⟩
abbrev main_v6951 : Ref sig .tc := ⟨.hbm, 7651, rfl⟩
abbrev main_v6952 : Ref sig .tc := ⟨.hbm, 7652, rfl⟩
abbrev main_v6953 : Ref sig .tc := ⟨.hbm, 7653, rfl⟩
abbrev main_v6954 : Ref sig .tc := ⟨.hbm, 7654, rfl⟩
abbrev main_v6955 : Ref sig .tc := ⟨.hbm, 7655, rfl⟩
abbrev main_v6956 : Ref sig .tc := ⟨.hbm, 7656, rfl⟩
abbrev main_v6957 : Ref sig .tc := ⟨.hbm, 7657, rfl⟩
abbrev main_v6958 : Ref sig .tc := ⟨.hbm, 7658, rfl⟩
abbrev main_v6959 : Ref sig .tc := ⟨.hbm, 7659, rfl⟩
abbrev main_v6960 : Ref sig .tc := ⟨.hbm, 7660, rfl⟩
abbrev main_cst_694 : Ref sig .tc := ⟨.hbm, 7661, rfl⟩
abbrev main_v6961 : Ref sig .tc := ⟨.hbm, 7662, rfl⟩
abbrev main_c_695 : Ref sig .tc := ⟨.hbm, 7663, rfl⟩
abbrev main_v6962 : Ref sig .tc := ⟨.hbm, 7664, rfl⟩
abbrev main_v6963 : Ref sig .tc := ⟨.hbm, 7665, rfl⟩
abbrev main_v6964 : Ref sig .tc := ⟨.hbm, 7666, rfl⟩
abbrev main_v6965 : Ref sig .tc := ⟨.hbm, 7667, rfl⟩
abbrev main_v6966 : Ref sig .tc := ⟨.hbm, 7668, rfl⟩
abbrev main_v6967 : Ref sig .tc := ⟨.hbm, 7669, rfl⟩
abbrev main_v6968 : Ref sig .tc := ⟨.hbm, 7670, rfl⟩
abbrev main_v6969 : Ref sig .tc := ⟨.hbm, 7671, rfl⟩
abbrev main_v6970 : Ref sig .tc := ⟨.hbm, 7672, rfl⟩
abbrev main_v6971 : Ref sig .tc := ⟨.hbm, 7673, rfl⟩
abbrev main_v6972 : Ref sig .tc := ⟨.hbm, 7674, rfl⟩
abbrev main_v6973 : Ref sig .tc := ⟨.hbm, 7675, rfl⟩
abbrev main_v6974 : Ref sig .tc := ⟨.hbm, 7676, rfl⟩
abbrev main_v6975 : Ref sig .tc := ⟨.hbm, 7677, rfl⟩
abbrev main_v6976 : Ref sig .tc := ⟨.hbm, 7678, rfl⟩
abbrev main_v6977 : Ref sig .tc := ⟨.hbm, 7679, rfl⟩
abbrev main_v6978 : Ref sig .tc := ⟨.hbm, 7680, rfl⟩
abbrev main_v6979 : Ref sig .tc := ⟨.hbm, 7681, rfl⟩
abbrev main_v6980 : Ref sig .tc := ⟨.hbm, 7682, rfl⟩
abbrev main_cst_696 : Ref sig .tc := ⟨.hbm, 7683, rfl⟩
abbrev main_v6981 : Ref sig .tc := ⟨.hbm, 7684, rfl⟩
abbrev main_c_697 : Ref sig .tc := ⟨.hbm, 7685, rfl⟩
abbrev main_v6982 : Ref sig .tc := ⟨.hbm, 7686, rfl⟩
abbrev main_v6983 : Ref sig .tc := ⟨.hbm, 7687, rfl⟩
abbrev main_v6984 : Ref sig .tc := ⟨.hbm, 7688, rfl⟩
abbrev main_v6985 : Ref sig .tc := ⟨.hbm, 7689, rfl⟩
abbrev main_v6986 : Ref sig .tc := ⟨.hbm, 7690, rfl⟩
abbrev main_v6987 : Ref sig .tc := ⟨.hbm, 7691, rfl⟩
abbrev main_v6988 : Ref sig .tc := ⟨.hbm, 7692, rfl⟩
abbrev main_v6989 : Ref sig .tc := ⟨.hbm, 7693, rfl⟩
abbrev main_v6990 : Ref sig .tc := ⟨.hbm, 7694, rfl⟩
abbrev main_v6991 : Ref sig .tc := ⟨.hbm, 7695, rfl⟩
abbrev main_v6992 : Ref sig .tc := ⟨.hbm, 7696, rfl⟩
abbrev main_v6993 : Ref sig .tc := ⟨.hbm, 7697, rfl⟩
abbrev main_v6994 : Ref sig .tc := ⟨.hbm, 7698, rfl⟩
abbrev main_v6995 : Ref sig .tc := ⟨.hbm, 7699, rfl⟩
abbrev main_v6996 : Ref sig .tc := ⟨.hbm, 7700, rfl⟩
abbrev main_v6997 : Ref sig .tc := ⟨.hbm, 7701, rfl⟩
abbrev main_v6998 : Ref sig .tc := ⟨.hbm, 7702, rfl⟩
abbrev main_v6999 : Ref sig .tc := ⟨.hbm, 7703, rfl⟩
abbrev main_v7000 : Ref sig .tc := ⟨.hbm, 7704, rfl⟩
abbrev main_cst_698 : Ref sig .tc := ⟨.hbm, 7705, rfl⟩
abbrev main_v7001 : Ref sig .tc := ⟨.hbm, 7706, rfl⟩
abbrev main_c_699 : Ref sig .tc := ⟨.hbm, 7707, rfl⟩
abbrev main_v7002 : Ref sig .tc := ⟨.hbm, 7708, rfl⟩
abbrev main_v7003 : Ref sig .tc := ⟨.hbm, 7709, rfl⟩
abbrev main_v7004 : Ref sig .tc := ⟨.hbm, 7710, rfl⟩
abbrev main_v7005 : Ref sig .tc := ⟨.hbm, 7711, rfl⟩
abbrev main_v7006 : Ref sig .tc := ⟨.hbm, 7712, rfl⟩
abbrev main_v7007 : Ref sig .tc := ⟨.hbm, 7713, rfl⟩
abbrev main_v7008 : Ref sig .tc := ⟨.hbm, 7714, rfl⟩
abbrev main_v7009 : Ref sig .tc := ⟨.hbm, 7715, rfl⟩
abbrev main_v7010 : Ref sig .tc := ⟨.hbm, 7716, rfl⟩
abbrev main_v7011 : Ref sig .tc := ⟨.hbm, 7717, rfl⟩
abbrev main_v7012 : Ref sig .tc := ⟨.hbm, 7718, rfl⟩
abbrev main_v7013 : Ref sig .tc := ⟨.hbm, 7719, rfl⟩
abbrev main_v7014 : Ref sig .tc := ⟨.hbm, 7720, rfl⟩
abbrev main_v7015 : Ref sig .tc := ⟨.hbm, 7721, rfl⟩
abbrev main_v7016 : Ref sig .tc := ⟨.hbm, 7722, rfl⟩
abbrev main_v7017 : Ref sig .tc := ⟨.hbm, 7723, rfl⟩
abbrev main_v7018 : Ref sig .tc := ⟨.hbm, 7724, rfl⟩
abbrev main_v7019 : Ref sig .tc := ⟨.hbm, 7725, rfl⟩
abbrev main_v7020 : Ref sig .tc := ⟨.hbm, 7726, rfl⟩
abbrev main_cst_700 : Ref sig .tc := ⟨.hbm, 7727, rfl⟩
abbrev main_v7021 : Ref sig .tc := ⟨.hbm, 7728, rfl⟩
abbrev main_c_701 : Ref sig .tc := ⟨.hbm, 7729, rfl⟩
abbrev main_v7022 : Ref sig .tc := ⟨.hbm, 7730, rfl⟩
abbrev main_v7023 : Ref sig .tc := ⟨.hbm, 7731, rfl⟩
abbrev main_v7024 : Ref sig .tc := ⟨.hbm, 7732, rfl⟩
abbrev main_v7025 : Ref sig .tc := ⟨.hbm, 7733, rfl⟩
abbrev main_v7026 : Ref sig .tc := ⟨.hbm, 7734, rfl⟩
abbrev main_v7027 : Ref sig .tc := ⟨.hbm, 7735, rfl⟩
abbrev main_v7028 : Ref sig .tc := ⟨.hbm, 7736, rfl⟩
abbrev main_v7029 : Ref sig .tc := ⟨.hbm, 7737, rfl⟩
abbrev main_v7030 : Ref sig .tc := ⟨.hbm, 7738, rfl⟩
abbrev main_v7031 : Ref sig .tc := ⟨.hbm, 7739, rfl⟩
abbrev main_v7032 : Ref sig .tc := ⟨.hbm, 7740, rfl⟩
abbrev main_v7033 : Ref sig .tc := ⟨.hbm, 7741, rfl⟩
abbrev main_v7034 : Ref sig .tc := ⟨.hbm, 7742, rfl⟩
abbrev main_v7035 : Ref sig .tc := ⟨.hbm, 7743, rfl⟩
abbrev main_v7036 : Ref sig .tc := ⟨.hbm, 7744, rfl⟩
abbrev main_v7037 : Ref sig .tc := ⟨.hbm, 7745, rfl⟩
abbrev main_v7038 : Ref sig .tc := ⟨.hbm, 7746, rfl⟩
abbrev main_v7039 : Ref sig .tc := ⟨.hbm, 7747, rfl⟩
abbrev main_v7040 : Ref sig .tc := ⟨.hbm, 7748, rfl⟩
abbrev main_cst_702 : Ref sig .tc := ⟨.hbm, 7749, rfl⟩
abbrev main_v7041 : Ref sig .tc := ⟨.hbm, 7750, rfl⟩
abbrev main_c_703 : Ref sig .tc := ⟨.hbm, 7751, rfl⟩
abbrev main_v7042 : Ref sig .tc := ⟨.hbm, 7752, rfl⟩
abbrev main_v7043 : Ref sig .tc := ⟨.hbm, 7753, rfl⟩
abbrev main_v7044 : Ref sig .tc := ⟨.hbm, 7754, rfl⟩
abbrev main_v7045 : Ref sig .tc := ⟨.hbm, 7755, rfl⟩
abbrev main_v7046 : Ref sig .tc := ⟨.hbm, 7756, rfl⟩
abbrev main_v7047 : Ref sig .tc := ⟨.hbm, 7757, rfl⟩
abbrev main_v7048 : Ref sig .tc := ⟨.hbm, 7758, rfl⟩
abbrev main_v7049 : Ref sig .tc := ⟨.hbm, 7759, rfl⟩
abbrev main_v7050 : Ref sig .tc := ⟨.hbm, 7760, rfl⟩
abbrev main_v7051 : Ref sig .tc := ⟨.hbm, 7761, rfl⟩
abbrev main_v7052 : Ref sig .tc := ⟨.hbm, 7762, rfl⟩
abbrev main_v7053 : Ref sig .tc := ⟨.hbm, 7763, rfl⟩
abbrev main_v7054 : Ref sig .tc := ⟨.hbm, 7764, rfl⟩
abbrev main_v7055 : Ref sig .tc := ⟨.hbm, 7765, rfl⟩
abbrev main_v7056 : Ref sig .tc := ⟨.hbm, 7766, rfl⟩
abbrev main_v7057 : Ref sig .tc := ⟨.hbm, 7767, rfl⟩
abbrev main_v7058 : Ref sig .tc := ⟨.hbm, 7768, rfl⟩
abbrev main_v7059 : Ref sig .tc := ⟨.hbm, 7769, rfl⟩
abbrev main_v7060 : Ref sig .tc := ⟨.hbm, 7770, rfl⟩
abbrev main_cst_704 : Ref sig .tc := ⟨.hbm, 7771, rfl⟩
abbrev main_v7061 : Ref sig .tc := ⟨.hbm, 7772, rfl⟩
abbrev main_c_705 : Ref sig .tc := ⟨.hbm, 7773, rfl⟩
abbrev main_v7062 : Ref sig .tc := ⟨.hbm, 7774, rfl⟩
abbrev main_v7063 : Ref sig .tc := ⟨.hbm, 7775, rfl⟩
abbrev main_v7064 : Ref sig .tc := ⟨.hbm, 7776, rfl⟩
abbrev main_v7065 : Ref sig .tc := ⟨.hbm, 7777, rfl⟩
abbrev main_v7066 : Ref sig .tc := ⟨.hbm, 7778, rfl⟩
abbrev main_v7067 : Ref sig .tc := ⟨.hbm, 7779, rfl⟩
abbrev main_v7068 : Ref sig .tc := ⟨.hbm, 7780, rfl⟩
abbrev main_v7069 : Ref sig .tc := ⟨.hbm, 7781, rfl⟩
abbrev main_v7070 : Ref sig .tc := ⟨.hbm, 7782, rfl⟩
abbrev main_v7071 : Ref sig .tc := ⟨.hbm, 7783, rfl⟩
abbrev main_v7072 : Ref sig .tc := ⟨.hbm, 7784, rfl⟩
abbrev main_v7073 : Ref sig .tc := ⟨.hbm, 7785, rfl⟩
abbrev main_v7074 : Ref sig .tc := ⟨.hbm, 7786, rfl⟩
abbrev main_v7075 : Ref sig .tc := ⟨.hbm, 7787, rfl⟩
abbrev main_v7076 : Ref sig .tc := ⟨.hbm, 7788, rfl⟩
abbrev main_v7077 : Ref sig .tc := ⟨.hbm, 7789, rfl⟩
abbrev main_v7078 : Ref sig .tc := ⟨.hbm, 7790, rfl⟩
abbrev main_v7079 : Ref sig .tc := ⟨.hbm, 7791, rfl⟩
abbrev main_v7080 : Ref sig .tc := ⟨.hbm, 7792, rfl⟩
abbrev main_cst_706 : Ref sig .tc := ⟨.hbm, 7793, rfl⟩
abbrev main_v7081 : Ref sig .tc := ⟨.hbm, 7794, rfl⟩
abbrev main_c_707 : Ref sig .tc := ⟨.hbm, 7795, rfl⟩
abbrev main_v7082 : Ref sig .tc := ⟨.hbm, 7796, rfl⟩
abbrev main_v7083 : Ref sig .tc := ⟨.hbm, 7797, rfl⟩
abbrev main_v7084 : Ref sig .tc := ⟨.hbm, 7798, rfl⟩
abbrev main_v7085 : Ref sig .tc := ⟨.hbm, 7799, rfl⟩
abbrev main_v7086 : Ref sig .tc := ⟨.hbm, 7800, rfl⟩
abbrev main_v7087 : Ref sig .tc := ⟨.hbm, 7801, rfl⟩
abbrev main_v7088 : Ref sig .tc := ⟨.hbm, 7802, rfl⟩
abbrev main_v7089 : Ref sig .tc := ⟨.hbm, 7803, rfl⟩
abbrev main_v7090 : Ref sig .tc := ⟨.hbm, 7804, rfl⟩
abbrev main_v7091 : Ref sig .tc := ⟨.hbm, 7805, rfl⟩
abbrev main_v7092 : Ref sig .tc := ⟨.hbm, 7806, rfl⟩
abbrev main_v7093 : Ref sig .tc := ⟨.hbm, 7807, rfl⟩
abbrev main_v7094 : Ref sig .tc := ⟨.hbm, 7808, rfl⟩
abbrev main_v7095 : Ref sig .tc := ⟨.hbm, 7809, rfl⟩
abbrev main_v7096 : Ref sig .tc := ⟨.hbm, 7810, rfl⟩
abbrev main_v7097 : Ref sig .tc := ⟨.hbm, 7811, rfl⟩
abbrev main_v7098 : Ref sig .tc := ⟨.hbm, 7812, rfl⟩
abbrev main_v7099 : Ref sig .tc := ⟨.hbm, 7813, rfl⟩
abbrev main_v7100 : Ref sig .tc := ⟨.hbm, 7814, rfl⟩
abbrev main_cst_708 : Ref sig .tc := ⟨.hbm, 7815, rfl⟩
abbrev main_v7101 : Ref sig .tc := ⟨.hbm, 7816, rfl⟩
abbrev main_c_709 : Ref sig .tc := ⟨.hbm, 7817, rfl⟩
abbrev main_v7102 : Ref sig .tc := ⟨.hbm, 7818, rfl⟩
abbrev main_v7103 : Ref sig .tc := ⟨.hbm, 7819, rfl⟩
abbrev main_v7104 : Ref sig .tc := ⟨.hbm, 7820, rfl⟩
abbrev main_v7105 : Ref sig .tc := ⟨.hbm, 7821, rfl⟩
abbrev main_v7106 : Ref sig .tc := ⟨.hbm, 7822, rfl⟩
abbrev main_v7107 : Ref sig .tc := ⟨.hbm, 7823, rfl⟩
abbrev main_v7108 : Ref sig .tc := ⟨.hbm, 7824, rfl⟩
abbrev main_v7109 : Ref sig .tc := ⟨.hbm, 7825, rfl⟩
abbrev main_v7110 : Ref sig .tc := ⟨.hbm, 7826, rfl⟩
abbrev main_v7111 : Ref sig .tc := ⟨.hbm, 7827, rfl⟩
abbrev main_v7112 : Ref sig .tc := ⟨.hbm, 7828, rfl⟩
abbrev main_v7113 : Ref sig .tc := ⟨.hbm, 7829, rfl⟩
abbrev main_v7114 : Ref sig .tc := ⟨.hbm, 7830, rfl⟩
abbrev main_v7115 : Ref sig .tc := ⟨.hbm, 7831, rfl⟩
abbrev main_v7116 : Ref sig .tc := ⟨.hbm, 7832, rfl⟩
abbrev main_v7117 : Ref sig .tc := ⟨.hbm, 7833, rfl⟩
abbrev main_v7118 : Ref sig .tc := ⟨.hbm, 7834, rfl⟩
abbrev main_v7119 : Ref sig .tc := ⟨.hbm, 7835, rfl⟩
abbrev main_v7120 : Ref sig .tc := ⟨.hbm, 7836, rfl⟩
abbrev main_cst_710 : Ref sig .tc := ⟨.hbm, 7837, rfl⟩
abbrev main_v7121 : Ref sig .tc := ⟨.hbm, 7838, rfl⟩
abbrev main_c_711 : Ref sig .tc := ⟨.hbm, 7839, rfl⟩
abbrev main_v7122 : Ref sig .tc := ⟨.hbm, 7840, rfl⟩
abbrev main_v7123 : Ref sig .tc := ⟨.hbm, 7841, rfl⟩
abbrev main_v7124 : Ref sig .tc := ⟨.hbm, 7842, rfl⟩
abbrev main_v7125 : Ref sig .tc := ⟨.hbm, 7843, rfl⟩
abbrev main_v7126 : Ref sig .tc := ⟨.hbm, 7844, rfl⟩
abbrev main_v7127 : Ref sig .tc := ⟨.hbm, 7845, rfl⟩
abbrev main_v7128 : Ref sig .tc := ⟨.hbm, 7846, rfl⟩
abbrev main_v7129 : Ref sig .tc := ⟨.hbm, 7847, rfl⟩
abbrev main_v7130 : Ref sig .tc := ⟨.hbm, 7848, rfl⟩
abbrev main_v7131 : Ref sig .tc := ⟨.hbm, 7849, rfl⟩
abbrev main_v7132 : Ref sig .tc := ⟨.hbm, 7850, rfl⟩
abbrev main_v7133 : Ref sig .tc := ⟨.hbm, 7851, rfl⟩
abbrev main_v7134 : Ref sig .tc := ⟨.hbm, 7852, rfl⟩
abbrev main_v7135 : Ref sig .tc := ⟨.hbm, 7853, rfl⟩
abbrev main_v7136 : Ref sig .tc := ⟨.hbm, 7854, rfl⟩
abbrev main_v7137 : Ref sig .tc := ⟨.hbm, 7855, rfl⟩
abbrev main_v7138 : Ref sig .tc := ⟨.hbm, 7856, rfl⟩
abbrev main_v7139 : Ref sig .tc := ⟨.hbm, 7857, rfl⟩
abbrev main_v7140 : Ref sig .tc := ⟨.hbm, 7858, rfl⟩
abbrev main_cst_712 : Ref sig .tc := ⟨.hbm, 7859, rfl⟩
abbrev main_v7141 : Ref sig .tc := ⟨.hbm, 7860, rfl⟩
abbrev main_c_713 : Ref sig .tc := ⟨.hbm, 7861, rfl⟩
abbrev main_v7142 : Ref sig .tc := ⟨.hbm, 7862, rfl⟩
abbrev main_v7143 : Ref sig .tc := ⟨.hbm, 7863, rfl⟩
abbrev main_v7144 : Ref sig .tc := ⟨.hbm, 7864, rfl⟩
abbrev main_v7145 : Ref sig .tc := ⟨.hbm, 7865, rfl⟩
abbrev main_v7146 : Ref sig .tc := ⟨.hbm, 7866, rfl⟩
abbrev main_v7147 : Ref sig .tc := ⟨.hbm, 7867, rfl⟩
abbrev main_v7148 : Ref sig .tc := ⟨.hbm, 7868, rfl⟩
abbrev main_v7149 : Ref sig .tc := ⟨.hbm, 7869, rfl⟩
abbrev main_v7150 : Ref sig .tc := ⟨.hbm, 7870, rfl⟩
abbrev main_v7151 : Ref sig .tc := ⟨.hbm, 7871, rfl⟩
abbrev main_v7152 : Ref sig .tc := ⟨.hbm, 7872, rfl⟩
abbrev main_v7153 : Ref sig .tc := ⟨.hbm, 7873, rfl⟩
abbrev main_v7154 : Ref sig .tc := ⟨.hbm, 7874, rfl⟩
abbrev main_v7155 : Ref sig .tc := ⟨.hbm, 7875, rfl⟩
abbrev main_v7156 : Ref sig .tc := ⟨.hbm, 7876, rfl⟩
abbrev main_v7157 : Ref sig .tc := ⟨.hbm, 7877, rfl⟩
abbrev main_v7158 : Ref sig .tc := ⟨.hbm, 7878, rfl⟩
abbrev main_v7159 : Ref sig .tc := ⟨.hbm, 7879, rfl⟩
abbrev main_v7160 : Ref sig .tc := ⟨.hbm, 7880, rfl⟩
abbrev main_cst_714 : Ref sig .tc := ⟨.hbm, 7881, rfl⟩
abbrev main_v7161 : Ref sig .tc := ⟨.hbm, 7882, rfl⟩
abbrev main_c_715 : Ref sig .tc := ⟨.hbm, 7883, rfl⟩
abbrev main_v7162 : Ref sig .tc := ⟨.hbm, 7884, rfl⟩
abbrev main_v7163 : Ref sig .tc := ⟨.hbm, 7885, rfl⟩
abbrev main_v7164 : Ref sig .tc := ⟨.hbm, 7886, rfl⟩
abbrev main_v7165 : Ref sig .tc := ⟨.hbm, 7887, rfl⟩
abbrev main_v7166 : Ref sig .tc := ⟨.hbm, 7888, rfl⟩
abbrev main_v7167 : Ref sig .tc := ⟨.hbm, 7889, rfl⟩
abbrev main_v7168 : Ref sig .tc := ⟨.hbm, 7890, rfl⟩
abbrev main_v7169 : Ref sig .tc := ⟨.hbm, 7891, rfl⟩
abbrev main_v7170 : Ref sig .tc := ⟨.hbm, 7892, rfl⟩
abbrev main_v7171 : Ref sig .tc := ⟨.hbm, 7893, rfl⟩
abbrev main_v7172 : Ref sig .tc := ⟨.hbm, 7894, rfl⟩
abbrev main_v7173 : Ref sig .tc := ⟨.hbm, 7895, rfl⟩
abbrev main_v7174 : Ref sig .tc := ⟨.hbm, 7896, rfl⟩
abbrev main_v7175 : Ref sig .tc := ⟨.hbm, 7897, rfl⟩
abbrev main_v7176 : Ref sig .tc := ⟨.hbm, 7898, rfl⟩
abbrev main_v7177 : Ref sig .tc := ⟨.hbm, 7899, rfl⟩
abbrev main_v7178 : Ref sig .tc := ⟨.hbm, 7900, rfl⟩
abbrev main_v7179 : Ref sig .tc := ⟨.hbm, 7901, rfl⟩
abbrev main_v7180 : Ref sig .tc := ⟨.hbm, 7902, rfl⟩
abbrev main_cst_716 : Ref sig .tc := ⟨.hbm, 7903, rfl⟩
abbrev main_v7181 : Ref sig .tc := ⟨.hbm, 7904, rfl⟩
abbrev main_c_717 : Ref sig .tc := ⟨.hbm, 7905, rfl⟩
abbrev main_v7182 : Ref sig .tc := ⟨.hbm, 7906, rfl⟩
abbrev main_v7183 : Ref sig .tc := ⟨.hbm, 7907, rfl⟩
abbrev main_v7184 : Ref sig .tc := ⟨.hbm, 7908, rfl⟩
abbrev main_v7185 : Ref sig .tc := ⟨.hbm, 7909, rfl⟩
abbrev main_v7186 : Ref sig .tc := ⟨.hbm, 7910, rfl⟩
abbrev main_v7187 : Ref sig .tc := ⟨.hbm, 7911, rfl⟩
abbrev main_v7188 : Ref sig .tc := ⟨.hbm, 7912, rfl⟩
abbrev main_v7189 : Ref sig .tc := ⟨.hbm, 7913, rfl⟩
abbrev main_v7190 : Ref sig .tc := ⟨.hbm, 7914, rfl⟩
abbrev main_v7191 : Ref sig .tc := ⟨.hbm, 7915, rfl⟩
abbrev main_v7192 : Ref sig .tc := ⟨.hbm, 7916, rfl⟩
abbrev main_v7193 : Ref sig .tc := ⟨.hbm, 7917, rfl⟩
abbrev main_v7194 : Ref sig .tc := ⟨.hbm, 7918, rfl⟩
abbrev main_v7195 : Ref sig .tc := ⟨.hbm, 7919, rfl⟩
abbrev main_v7196 : Ref sig .tc := ⟨.hbm, 7920, rfl⟩
abbrev main_v7197 : Ref sig .tc := ⟨.hbm, 7921, rfl⟩
abbrev main_v7198 : Ref sig .tc := ⟨.hbm, 7922, rfl⟩
abbrev main_v7199 : Ref sig .tc := ⟨.hbm, 7923, rfl⟩
abbrev main_v7200 : Ref sig .tc := ⟨.hbm, 7924, rfl⟩
abbrev main_cst_718 : Ref sig .tc := ⟨.hbm, 7925, rfl⟩
abbrev main_v7201 : Ref sig .tc := ⟨.hbm, 7926, rfl⟩
abbrev main_c_719 : Ref sig .tc := ⟨.hbm, 7927, rfl⟩
abbrev main_v7202 : Ref sig .tc := ⟨.hbm, 7928, rfl⟩
abbrev main_v7203 : Ref sig .tc := ⟨.hbm, 7929, rfl⟩
abbrev main_v7204 : Ref sig .tc := ⟨.hbm, 7930, rfl⟩
abbrev main_v7205 : Ref sig .tc := ⟨.hbm, 7931, rfl⟩
abbrev main_v7206 : Ref sig .tc := ⟨.hbm, 7932, rfl⟩
abbrev main_v7207 : Ref sig .tc := ⟨.hbm, 7933, rfl⟩
abbrev main_v7208 : Ref sig .tc := ⟨.hbm, 7934, rfl⟩
abbrev main_v7209 : Ref sig .tc := ⟨.hbm, 7935, rfl⟩
abbrev main_v7210 : Ref sig .tc := ⟨.hbm, 7936, rfl⟩
abbrev main_v7211 : Ref sig .tc := ⟨.hbm, 7937, rfl⟩
abbrev main_v7212 : Ref sig .tc := ⟨.hbm, 7938, rfl⟩
abbrev main_v7213 : Ref sig .tc := ⟨.hbm, 7939, rfl⟩
abbrev main_v7214 : Ref sig .tc := ⟨.hbm, 7940, rfl⟩
abbrev main_v7215 : Ref sig .tc := ⟨.hbm, 7941, rfl⟩
abbrev main_v7216 : Ref sig .tc := ⟨.hbm, 7942, rfl⟩
abbrev main_v7217 : Ref sig .tc := ⟨.hbm, 7943, rfl⟩
abbrev main_v7218 : Ref sig .tc := ⟨.hbm, 7944, rfl⟩
abbrev main_v7219 : Ref sig .tc := ⟨.hbm, 7945, rfl⟩
abbrev main_v7220 : Ref sig .tc := ⟨.hbm, 7946, rfl⟩
abbrev main_cst_720 : Ref sig .tc := ⟨.hbm, 7947, rfl⟩
abbrev main_v7221 : Ref sig .tc := ⟨.hbm, 7948, rfl⟩
abbrev main_c_721 : Ref sig .tc := ⟨.hbm, 7949, rfl⟩
abbrev main_v7222 : Ref sig .tc := ⟨.hbm, 7950, rfl⟩
abbrev main_v7223 : Ref sig .tc := ⟨.hbm, 7951, rfl⟩
abbrev main_v7224 : Ref sig .tc := ⟨.hbm, 7952, rfl⟩
abbrev main_v7225 : Ref sig .tc := ⟨.hbm, 7953, rfl⟩
abbrev main_v7226 : Ref sig .tc := ⟨.hbm, 7954, rfl⟩
abbrev main_v7227 : Ref sig .tc := ⟨.hbm, 7955, rfl⟩
abbrev main_v7228 : Ref sig .tc := ⟨.hbm, 7956, rfl⟩
abbrev main_v7229 : Ref sig .tc := ⟨.hbm, 7957, rfl⟩
abbrev main_v7230 : Ref sig .tc := ⟨.hbm, 7958, rfl⟩
abbrev main_v7231 : Ref sig .tc := ⟨.hbm, 7959, rfl⟩
abbrev main_v7232 : Ref sig .tc := ⟨.hbm, 7960, rfl⟩
abbrev main_v7233 : Ref sig .tc := ⟨.hbm, 7961, rfl⟩
abbrev main_v7234 : Ref sig .tc := ⟨.hbm, 7962, rfl⟩
abbrev main_v7235 : Ref sig .tc := ⟨.hbm, 7963, rfl⟩
abbrev main_v7236 : Ref sig .tc := ⟨.hbm, 7964, rfl⟩
abbrev main_v7237 : Ref sig .tc := ⟨.hbm, 7965, rfl⟩
abbrev main_v7238 : Ref sig .tc := ⟨.hbm, 7966, rfl⟩
abbrev main_v7239 : Ref sig .tc := ⟨.hbm, 7967, rfl⟩
abbrev main_v7240 : Ref sig .tc := ⟨.hbm, 7968, rfl⟩
abbrev main_cst_722 : Ref sig .tc := ⟨.hbm, 7969, rfl⟩
abbrev main_v7241 : Ref sig .tc := ⟨.hbm, 7970, rfl⟩
abbrev main_c_723 : Ref sig .tc := ⟨.hbm, 7971, rfl⟩
abbrev main_v7242 : Ref sig .tc := ⟨.hbm, 7972, rfl⟩
abbrev main_v7243 : Ref sig .tc := ⟨.hbm, 7973, rfl⟩
abbrev main_v7244 : Ref sig .tc := ⟨.hbm, 7974, rfl⟩
abbrev main_v7245 : Ref sig .tc := ⟨.hbm, 7975, rfl⟩
abbrev main_v7246 : Ref sig .tc := ⟨.hbm, 7976, rfl⟩
abbrev main_v7247 : Ref sig .tc := ⟨.hbm, 7977, rfl⟩
abbrev main_v7248 : Ref sig .tc := ⟨.hbm, 7978, rfl⟩
abbrev main_v7249 : Ref sig .tc := ⟨.hbm, 7979, rfl⟩
abbrev main_v7250 : Ref sig .tc := ⟨.hbm, 7980, rfl⟩
abbrev main_v7251 : Ref sig .tc := ⟨.hbm, 7981, rfl⟩
abbrev main_v7252 : Ref sig .tc := ⟨.hbm, 7982, rfl⟩
abbrev main_v7253 : Ref sig .tc := ⟨.hbm, 7983, rfl⟩
abbrev main_v7254 : Ref sig .tc := ⟨.hbm, 7984, rfl⟩
abbrev main_v7255 : Ref sig .tc := ⟨.hbm, 7985, rfl⟩
abbrev main_v7256 : Ref sig .tc := ⟨.hbm, 7986, rfl⟩
abbrev main_v7257 : Ref sig .tc := ⟨.hbm, 7987, rfl⟩
abbrev main_v7258 : Ref sig .tc := ⟨.hbm, 7988, rfl⟩
abbrev main_v7259 : Ref sig .tc := ⟨.hbm, 7989, rfl⟩
abbrev main_v7260 : Ref sig .tc := ⟨.hbm, 7990, rfl⟩
abbrev main_cst_724 : Ref sig .tc := ⟨.hbm, 7991, rfl⟩
abbrev main_v7261 : Ref sig .tc := ⟨.hbm, 7992, rfl⟩
abbrev main_c_725 : Ref sig .tc := ⟨.hbm, 7993, rfl⟩
abbrev main_v7262 : Ref sig .tc := ⟨.hbm, 7994, rfl⟩
abbrev main_v7263 : Ref sig .tc := ⟨.hbm, 7995, rfl⟩
abbrev main_v7264 : Ref sig .tc := ⟨.hbm, 7996, rfl⟩
abbrev main_v7265 : Ref sig .tc := ⟨.hbm, 7997, rfl⟩
abbrev main_v7266 : Ref sig .tc := ⟨.hbm, 7998, rfl⟩
abbrev main_v7267 : Ref sig .tc := ⟨.hbm, 7999, rfl⟩
abbrev main_v7268 : Ref sig .tc := ⟨.hbm, 8000, rfl⟩
abbrev main_v7269 : Ref sig .tc := ⟨.hbm, 8001, rfl⟩
abbrev main_v7270 : Ref sig .tc := ⟨.hbm, 8002, rfl⟩
abbrev main_v7271 : Ref sig .tc := ⟨.hbm, 8003, rfl⟩
abbrev main_v7272 : Ref sig .tc := ⟨.hbm, 8004, rfl⟩
abbrev main_v7273 : Ref sig .tc := ⟨.hbm, 8005, rfl⟩
abbrev main_v7274 : Ref sig .tc := ⟨.hbm, 8006, rfl⟩
abbrev main_v7275 : Ref sig .tc := ⟨.hbm, 8007, rfl⟩
abbrev main_v7276 : Ref sig .tc := ⟨.hbm, 8008, rfl⟩
abbrev main_v7277 : Ref sig .tc := ⟨.hbm, 8009, rfl⟩
abbrev main_v7278 : Ref sig .tc := ⟨.hbm, 8010, rfl⟩
abbrev main_v7279 : Ref sig .tc := ⟨.hbm, 8011, rfl⟩
abbrev main_v7280 : Ref sig .tc := ⟨.hbm, 8012, rfl⟩
abbrev main_cst_726 : Ref sig .tc := ⟨.hbm, 8013, rfl⟩
abbrev main_v7281 : Ref sig .tc := ⟨.hbm, 8014, rfl⟩
abbrev main_c_727 : Ref sig .tc := ⟨.hbm, 8015, rfl⟩
abbrev main_v7282 : Ref sig .tc := ⟨.hbm, 8016, rfl⟩
abbrev main_v7283 : Ref sig .tc := ⟨.hbm, 8017, rfl⟩
abbrev main_v7284 : Ref sig .tc := ⟨.hbm, 8018, rfl⟩
abbrev main_v7285 : Ref sig .tc := ⟨.hbm, 8019, rfl⟩
abbrev main_v7286 : Ref sig .tc := ⟨.hbm, 8020, rfl⟩
abbrev main_v7287 : Ref sig .tc := ⟨.hbm, 8021, rfl⟩
abbrev main_v7288 : Ref sig .tc := ⟨.hbm, 8022, rfl⟩
abbrev main_v7289 : Ref sig .tc := ⟨.hbm, 8023, rfl⟩
abbrev main_v7290 : Ref sig .tc := ⟨.hbm, 8024, rfl⟩
abbrev main_v7291 : Ref sig .tc := ⟨.hbm, 8025, rfl⟩
abbrev main_v7292 : Ref sig .tc := ⟨.hbm, 8026, rfl⟩
abbrev main_v7293 : Ref sig .tc := ⟨.hbm, 8027, rfl⟩
abbrev main_v7294 : Ref sig .tc := ⟨.hbm, 8028, rfl⟩
abbrev main_v7295 : Ref sig .tc := ⟨.hbm, 8029, rfl⟩
abbrev main_v7296 : Ref sig .tc := ⟨.hbm, 8030, rfl⟩
abbrev main_v7297 : Ref sig .tc := ⟨.hbm, 8031, rfl⟩
abbrev main_v7298 : Ref sig .tc := ⟨.hbm, 8032, rfl⟩
abbrev main_v7299 : Ref sig .tc := ⟨.hbm, 8033, rfl⟩
abbrev main_v7300 : Ref sig .tc := ⟨.hbm, 8034, rfl⟩
abbrev main_cst_728 : Ref sig .tc := ⟨.hbm, 8035, rfl⟩
abbrev main_v7301 : Ref sig .tc := ⟨.hbm, 8036, rfl⟩
abbrev main_c_729 : Ref sig .tc := ⟨.hbm, 8037, rfl⟩
abbrev main_v7302 : Ref sig .tc := ⟨.hbm, 8038, rfl⟩
abbrev main_v7303 : Ref sig .tc := ⟨.hbm, 8039, rfl⟩
abbrev main_v7304 : Ref sig .tc := ⟨.hbm, 8040, rfl⟩
abbrev main_v7305 : Ref sig .tc := ⟨.hbm, 8041, rfl⟩
abbrev main_v7306 : Ref sig .tc := ⟨.hbm, 8042, rfl⟩
abbrev main_v7307 : Ref sig .tc := ⟨.hbm, 8043, rfl⟩
abbrev main_v7308 : Ref sig .tc := ⟨.hbm, 8044, rfl⟩
abbrev main_v7309 : Ref sig .tc := ⟨.hbm, 8045, rfl⟩
abbrev main_v7310 : Ref sig .tc := ⟨.hbm, 8046, rfl⟩
abbrev main_v7311 : Ref sig .tc := ⟨.hbm, 8047, rfl⟩
abbrev main_v7312 : Ref sig .tc := ⟨.hbm, 8048, rfl⟩
abbrev main_v7313 : Ref sig .tc := ⟨.hbm, 8049, rfl⟩
abbrev main_v7314 : Ref sig .tc := ⟨.hbm, 8050, rfl⟩
abbrev main_v7315 : Ref sig .tc := ⟨.hbm, 8051, rfl⟩
abbrev main_v7316 : Ref sig .tc := ⟨.hbm, 8052, rfl⟩
abbrev main_v7317 : Ref sig .tc := ⟨.hbm, 8053, rfl⟩
abbrev main_v7318 : Ref sig .tc := ⟨.hbm, 8054, rfl⟩
abbrev main_v7319 : Ref sig .tc := ⟨.hbm, 8055, rfl⟩
abbrev main_v7320 : Ref sig .tc := ⟨.hbm, 8056, rfl⟩
abbrev main_cst_730 : Ref sig .tc := ⟨.hbm, 8057, rfl⟩
abbrev main_v7321 : Ref sig .tc := ⟨.hbm, 8058, rfl⟩
abbrev main_c_731 : Ref sig .tc := ⟨.hbm, 8059, rfl⟩
abbrev main_v7322 : Ref sig .tc := ⟨.hbm, 8060, rfl⟩
abbrev main_v7323 : Ref sig .tc := ⟨.hbm, 8061, rfl⟩
abbrev main_v7324 : Ref sig .tc := ⟨.hbm, 8062, rfl⟩
abbrev main_v7325 : Ref sig .tc := ⟨.hbm, 8063, rfl⟩
abbrev main_v7326 : Ref sig .tc := ⟨.hbm, 8064, rfl⟩
abbrev main_v7327 : Ref sig .tc := ⟨.hbm, 8065, rfl⟩
abbrev main_v7328 : Ref sig .tc := ⟨.hbm, 8066, rfl⟩
abbrev main_v7329 : Ref sig .tc := ⟨.hbm, 8067, rfl⟩
abbrev main_v7330 : Ref sig .tc := ⟨.hbm, 8068, rfl⟩
abbrev main_v7331 : Ref sig .tc := ⟨.hbm, 8069, rfl⟩
abbrev main_v7332 : Ref sig .tc := ⟨.hbm, 8070, rfl⟩
abbrev main_v7333 : Ref sig .tc := ⟨.hbm, 8071, rfl⟩
abbrev main_v7334 : Ref sig .tc := ⟨.hbm, 8072, rfl⟩
abbrev main_v7335 : Ref sig .tc := ⟨.hbm, 8073, rfl⟩
abbrev main_v7336 : Ref sig .tc := ⟨.hbm, 8074, rfl⟩
abbrev main_v7337 : Ref sig .tc := ⟨.hbm, 8075, rfl⟩
abbrev main_v7338 : Ref sig .tc := ⟨.hbm, 8076, rfl⟩
abbrev main_v7339 : Ref sig .tc := ⟨.hbm, 8077, rfl⟩
abbrev main_v7340 : Ref sig .tc := ⟨.hbm, 8078, rfl⟩
abbrev main_cst_732 : Ref sig .tc := ⟨.hbm, 8079, rfl⟩
abbrev main_v7341 : Ref sig .tc := ⟨.hbm, 8080, rfl⟩
abbrev main_c_733 : Ref sig .tc := ⟨.hbm, 8081, rfl⟩
abbrev main_v7342 : Ref sig .tc := ⟨.hbm, 8082, rfl⟩
abbrev main_v7343 : Ref sig .tc := ⟨.hbm, 8083, rfl⟩
abbrev main_v7344 : Ref sig .tc := ⟨.hbm, 8084, rfl⟩
abbrev main_v7345 : Ref sig .tc := ⟨.hbm, 8085, rfl⟩
abbrev main_v7346 : Ref sig .tc := ⟨.hbm, 8086, rfl⟩
abbrev main_v7347 : Ref sig .tc := ⟨.hbm, 8087, rfl⟩
abbrev main_v7348 : Ref sig .tc := ⟨.hbm, 8088, rfl⟩
abbrev main_v7349 : Ref sig .tc := ⟨.hbm, 8089, rfl⟩
abbrev main_v7350 : Ref sig .tc := ⟨.hbm, 8090, rfl⟩
abbrev main_v7351 : Ref sig .tc := ⟨.hbm, 8091, rfl⟩
abbrev main_v7352 : Ref sig .tc := ⟨.hbm, 8092, rfl⟩
abbrev main_v7353 : Ref sig .tc := ⟨.hbm, 8093, rfl⟩
abbrev main_v7354 : Ref sig .tc := ⟨.hbm, 8094, rfl⟩
abbrev main_v7355 : Ref sig .tc := ⟨.hbm, 8095, rfl⟩
abbrev main_v7356 : Ref sig .tc := ⟨.hbm, 8096, rfl⟩
abbrev main_v7357 : Ref sig .tc := ⟨.hbm, 8097, rfl⟩
abbrev main_v7358 : Ref sig .tc := ⟨.hbm, 8098, rfl⟩
abbrev main_v7359 : Ref sig .tc := ⟨.hbm, 8099, rfl⟩
abbrev main_v7360 : Ref sig .tc := ⟨.hbm, 8100, rfl⟩
abbrev main_cst_734 : Ref sig .tc := ⟨.hbm, 8101, rfl⟩
abbrev main_v7361 : Ref sig .tc := ⟨.hbm, 8102, rfl⟩
abbrev main_c_735 : Ref sig .tc := ⟨.hbm, 8103, rfl⟩
abbrev main_v7362 : Ref sig .tc := ⟨.hbm, 8104, rfl⟩
abbrev main_v7363 : Ref sig .tc := ⟨.hbm, 8105, rfl⟩
abbrev main_v7364 : Ref sig .tc := ⟨.hbm, 8106, rfl⟩
abbrev main_v7365 : Ref sig .tc := ⟨.hbm, 8107, rfl⟩
abbrev main_v7366 : Ref sig .tc := ⟨.hbm, 8108, rfl⟩
abbrev main_v7367 : Ref sig .tc := ⟨.hbm, 8109, rfl⟩
abbrev main_v7368 : Ref sig .tc := ⟨.hbm, 8110, rfl⟩
abbrev main_v7369 : Ref sig .tc := ⟨.hbm, 8111, rfl⟩
abbrev main_v7370 : Ref sig .tc := ⟨.hbm, 8112, rfl⟩
abbrev main_v7371 : Ref sig .tc := ⟨.hbm, 8113, rfl⟩
abbrev main_v7372 : Ref sig .tc := ⟨.hbm, 8114, rfl⟩
abbrev main_v7373 : Ref sig .tc := ⟨.hbm, 8115, rfl⟩
abbrev main_v7374 : Ref sig .tc := ⟨.hbm, 8116, rfl⟩
abbrev main_v7375 : Ref sig .tc := ⟨.hbm, 8117, rfl⟩
abbrev main_v7376 : Ref sig .tc := ⟨.hbm, 8118, rfl⟩
abbrev main_v7377 : Ref sig .tc := ⟨.hbm, 8119, rfl⟩
abbrev main_v7378 : Ref sig .tc := ⟨.hbm, 8120, rfl⟩
abbrev main_v7379 : Ref sig .tc := ⟨.hbm, 8121, rfl⟩
abbrev main_v7380 : Ref sig .tc := ⟨.hbm, 8122, rfl⟩
abbrev main_cst_736 : Ref sig .tc := ⟨.hbm, 8123, rfl⟩
abbrev main_v7381 : Ref sig .tc := ⟨.hbm, 8124, rfl⟩
abbrev main_c_737 : Ref sig .tc := ⟨.hbm, 8125, rfl⟩
abbrev main_v7382 : Ref sig .tc := ⟨.hbm, 8126, rfl⟩
abbrev main_v7383 : Ref sig .tc := ⟨.hbm, 8127, rfl⟩
abbrev main_v7384 : Ref sig .tc := ⟨.hbm, 8128, rfl⟩
abbrev main_v7385 : Ref sig .tc := ⟨.hbm, 8129, rfl⟩
abbrev main_v7386 : Ref sig .tc := ⟨.hbm, 8130, rfl⟩
abbrev main_v7387 : Ref sig .tc := ⟨.hbm, 8131, rfl⟩
abbrev main_v7388 : Ref sig .tc := ⟨.hbm, 8132, rfl⟩
abbrev main_v7389 : Ref sig .tc := ⟨.hbm, 8133, rfl⟩
abbrev main_v7390 : Ref sig .tc := ⟨.hbm, 8134, rfl⟩
abbrev main_v7391 : Ref sig .tc := ⟨.hbm, 8135, rfl⟩
abbrev main_v7392 : Ref sig .tc := ⟨.hbm, 8136, rfl⟩
abbrev main_v7393 : Ref sig .tc := ⟨.hbm, 8137, rfl⟩
abbrev main_v7394 : Ref sig .tc := ⟨.hbm, 8138, rfl⟩
abbrev main_v7395 : Ref sig .tc := ⟨.hbm, 8139, rfl⟩
abbrev main_v7396 : Ref sig .tc := ⟨.hbm, 8140, rfl⟩
abbrev main_v7397 : Ref sig .tc := ⟨.hbm, 8141, rfl⟩
abbrev main_v7398 : Ref sig .tc := ⟨.hbm, 8142, rfl⟩
abbrev main_v7399 : Ref sig .tc := ⟨.hbm, 8143, rfl⟩
abbrev main_v7400 : Ref sig .tc := ⟨.hbm, 8144, rfl⟩
abbrev main_cst_738 : Ref sig .tc := ⟨.hbm, 8145, rfl⟩
abbrev main_v7401 : Ref sig .tc := ⟨.hbm, 8146, rfl⟩
abbrev main_c_739 : Ref sig .tc := ⟨.hbm, 8147, rfl⟩
abbrev main_v7402 : Ref sig .tc := ⟨.hbm, 8148, rfl⟩
abbrev main_v7403 : Ref sig .tc := ⟨.hbm, 8149, rfl⟩
abbrev main_v7404 : Ref sig .tc := ⟨.hbm, 8150, rfl⟩
abbrev main_v7405 : Ref sig .tc := ⟨.hbm, 8151, rfl⟩
abbrev main_v7406 : Ref sig .tc := ⟨.hbm, 8152, rfl⟩
abbrev main_v7407 : Ref sig .tc := ⟨.hbm, 8153, rfl⟩
abbrev main_v7408 : Ref sig .tc := ⟨.hbm, 8154, rfl⟩
abbrev main_v7409 : Ref sig .tc := ⟨.hbm, 8155, rfl⟩
abbrev main_v7410 : Ref sig .tc := ⟨.hbm, 8156, rfl⟩
abbrev main_v7411 : Ref sig .tc := ⟨.hbm, 8157, rfl⟩
abbrev main_v7412 : Ref sig .tc := ⟨.hbm, 8158, rfl⟩
abbrev main_v7413 : Ref sig .tc := ⟨.hbm, 8159, rfl⟩
abbrev main_v7414 : Ref sig .tc := ⟨.hbm, 8160, rfl⟩
abbrev main_v7415 : Ref sig .tc := ⟨.hbm, 8161, rfl⟩
abbrev main_v7416 : Ref sig .tc := ⟨.hbm, 8162, rfl⟩
abbrev main_v7417 : Ref sig .tc := ⟨.hbm, 8163, rfl⟩
abbrev main_v7418 : Ref sig .tc := ⟨.hbm, 8164, rfl⟩
abbrev main_v7419 : Ref sig .tc := ⟨.hbm, 8165, rfl⟩
abbrev main_v7420 : Ref sig .tc := ⟨.hbm, 8166, rfl⟩
abbrev main_cst_740 : Ref sig .tc := ⟨.hbm, 8167, rfl⟩
abbrev main_v7421 : Ref sig .tc := ⟨.hbm, 8168, rfl⟩
abbrev main_c_741 : Ref sig .tc := ⟨.hbm, 8169, rfl⟩
abbrev main_v7422 : Ref sig .tc := ⟨.hbm, 8170, rfl⟩
abbrev main_v7423 : Ref sig .tc := ⟨.hbm, 8171, rfl⟩
abbrev main_v7424 : Ref sig .tc := ⟨.hbm, 8172, rfl⟩
abbrev main_v7425 : Ref sig .tc := ⟨.hbm, 8173, rfl⟩
abbrev main_v7426 : Ref sig .tc := ⟨.hbm, 8174, rfl⟩
abbrev main_v7427 : Ref sig .tc := ⟨.hbm, 8175, rfl⟩
abbrev main_v7428 : Ref sig .tc := ⟨.hbm, 8176, rfl⟩
abbrev main_v7429 : Ref sig .tc := ⟨.hbm, 8177, rfl⟩
abbrev main_v7430 : Ref sig .tc := ⟨.hbm, 8178, rfl⟩
abbrev main_v7431 : Ref sig .tc := ⟨.hbm, 8179, rfl⟩
abbrev main_v7432 : Ref sig .tc := ⟨.hbm, 8180, rfl⟩
abbrev main_v7433 : Ref sig .tc := ⟨.hbm, 8181, rfl⟩
abbrev main_v7434 : Ref sig .tc := ⟨.hbm, 8182, rfl⟩
abbrev main_v7435 : Ref sig .tc := ⟨.hbm, 8183, rfl⟩
abbrev main_v7436 : Ref sig .tc := ⟨.hbm, 8184, rfl⟩
abbrev main_v7437 : Ref sig .tc := ⟨.hbm, 8185, rfl⟩
abbrev main_v7438 : Ref sig .tc := ⟨.hbm, 8186, rfl⟩
abbrev main_v7439 : Ref sig .tc := ⟨.hbm, 8187, rfl⟩
abbrev main_v7440 : Ref sig .tc := ⟨.hbm, 8188, rfl⟩
abbrev main_cst_742 : Ref sig .tc := ⟨.hbm, 8189, rfl⟩
abbrev main_v7441 : Ref sig .tc := ⟨.hbm, 8190, rfl⟩
abbrev main_c_743 : Ref sig .tc := ⟨.hbm, 8191, rfl⟩
abbrev main_v7442 : Ref sig .tc := ⟨.hbm, 8192, rfl⟩
abbrev main_v7443 : Ref sig .tc := ⟨.hbm, 8193, rfl⟩
abbrev main_v7444 : Ref sig .tc := ⟨.hbm, 8194, rfl⟩
abbrev main_v7445 : Ref sig .tc := ⟨.hbm, 8195, rfl⟩
abbrev main_v7446 : Ref sig .tc := ⟨.hbm, 8196, rfl⟩
abbrev main_v7447 : Ref sig .tc := ⟨.hbm, 8197, rfl⟩
abbrev main_v7448 : Ref sig .tc := ⟨.hbm, 8198, rfl⟩
abbrev main_v7449 : Ref sig .tc := ⟨.hbm, 8199, rfl⟩
abbrev main_v7450 : Ref sig .tc := ⟨.hbm, 8200, rfl⟩
abbrev main_v7451 : Ref sig .tc := ⟨.hbm, 8201, rfl⟩
abbrev main_v7452 : Ref sig .tc := ⟨.hbm, 8202, rfl⟩
abbrev main_v7453 : Ref sig .tc := ⟨.hbm, 8203, rfl⟩
abbrev main_v7454 : Ref sig .tc := ⟨.hbm, 8204, rfl⟩
abbrev main_v7455 : Ref sig .tc := ⟨.hbm, 8205, rfl⟩
abbrev main_v7456 : Ref sig .tc := ⟨.hbm, 8206, rfl⟩
abbrev main_v7457 : Ref sig .tc := ⟨.hbm, 8207, rfl⟩
abbrev main_v7458 : Ref sig .tc := ⟨.hbm, 8208, rfl⟩
abbrev main_v7459 : Ref sig .tc := ⟨.hbm, 8209, rfl⟩
abbrev main_v7460 : Ref sig .tc := ⟨.hbm, 8210, rfl⟩
abbrev main_cst_744 : Ref sig .tc := ⟨.hbm, 8211, rfl⟩
abbrev main_v7461 : Ref sig .tc := ⟨.hbm, 8212, rfl⟩
abbrev main_c_745 : Ref sig .tc := ⟨.hbm, 8213, rfl⟩
abbrev main_v7462 : Ref sig .tc := ⟨.hbm, 8214, rfl⟩
abbrev main_v7463 : Ref sig .tc := ⟨.hbm, 8215, rfl⟩
abbrev main_v7464 : Ref sig .tc := ⟨.hbm, 8216, rfl⟩
abbrev main_v7465 : Ref sig .tc := ⟨.hbm, 8217, rfl⟩
abbrev main_v7466 : Ref sig .tc := ⟨.hbm, 8218, rfl⟩
abbrev main_v7467 : Ref sig .tc := ⟨.hbm, 8219, rfl⟩
abbrev main_v7468 : Ref sig .tc := ⟨.hbm, 8220, rfl⟩
abbrev main_v7469 : Ref sig .tc := ⟨.hbm, 8221, rfl⟩
abbrev main_v7470 : Ref sig .tc := ⟨.hbm, 8222, rfl⟩
abbrev main_v7471 : Ref sig .tc := ⟨.hbm, 8223, rfl⟩
abbrev main_v7472 : Ref sig .tc := ⟨.hbm, 8224, rfl⟩
abbrev main_v7473 : Ref sig .tc := ⟨.hbm, 8225, rfl⟩
abbrev main_v7474 : Ref sig .tc := ⟨.hbm, 8226, rfl⟩
abbrev main_v7475 : Ref sig .tc := ⟨.hbm, 8227, rfl⟩
abbrev main_v7476 : Ref sig .tc := ⟨.hbm, 8228, rfl⟩
abbrev main_v7477 : Ref sig .tc := ⟨.hbm, 8229, rfl⟩
abbrev main_v7478 : Ref sig .tc := ⟨.hbm, 8230, rfl⟩
abbrev main_v7479 : Ref sig .tc := ⟨.hbm, 8231, rfl⟩
abbrev main_v7480 : Ref sig .tc := ⟨.hbm, 8232, rfl⟩
abbrev main_cst_746 : Ref sig .tc := ⟨.hbm, 8233, rfl⟩
abbrev main_v7481 : Ref sig .tc := ⟨.hbm, 8234, rfl⟩
abbrev main_c_747 : Ref sig .tc := ⟨.hbm, 8235, rfl⟩
abbrev main_v7482 : Ref sig .tc := ⟨.hbm, 8236, rfl⟩
abbrev main_v7483 : Ref sig .tc := ⟨.hbm, 8237, rfl⟩
abbrev main_v7484 : Ref sig .tc := ⟨.hbm, 8238, rfl⟩
abbrev main_v7485 : Ref sig .tc := ⟨.hbm, 8239, rfl⟩
abbrev main_v7486 : Ref sig .tc := ⟨.hbm, 8240, rfl⟩
abbrev main_v7487 : Ref sig .tc := ⟨.hbm, 8241, rfl⟩
abbrev main_v7488 : Ref sig .tc := ⟨.hbm, 8242, rfl⟩
abbrev main_v7489 : Ref sig .tc := ⟨.hbm, 8243, rfl⟩
abbrev main_v7490 : Ref sig .tc := ⟨.hbm, 8244, rfl⟩
abbrev main_v7491 : Ref sig .tc := ⟨.hbm, 8245, rfl⟩
abbrev main_v7492 : Ref sig .tc := ⟨.hbm, 8246, rfl⟩
abbrev main_v7493 : Ref sig .tc := ⟨.hbm, 8247, rfl⟩
abbrev main_v7494 : Ref sig .tc := ⟨.hbm, 8248, rfl⟩
abbrev main_v7495 : Ref sig .tc := ⟨.hbm, 8249, rfl⟩
abbrev main_v7496 : Ref sig .tc := ⟨.hbm, 8250, rfl⟩
abbrev main_v7497 : Ref sig .tc := ⟨.hbm, 8251, rfl⟩
abbrev main_v7498 : Ref sig .tc := ⟨.hbm, 8252, rfl⟩
abbrev main_v7499 : Ref sig .tc := ⟨.hbm, 8253, rfl⟩
abbrev main_v7500 : Ref sig .tc := ⟨.hbm, 8254, rfl⟩
abbrev main_cst_748 : Ref sig .tc := ⟨.hbm, 8255, rfl⟩
abbrev main_v7501 : Ref sig .tc := ⟨.hbm, 8256, rfl⟩
abbrev main_c_749 : Ref sig .tc := ⟨.hbm, 8257, rfl⟩
abbrev main_v7502 : Ref sig .tc := ⟨.hbm, 8258, rfl⟩
abbrev main_v7503 : Ref sig .tc := ⟨.hbm, 8259, rfl⟩
abbrev main_v7504 : Ref sig .tc := ⟨.hbm, 8260, rfl⟩
abbrev main_v7505 : Ref sig .tc := ⟨.hbm, 8261, rfl⟩
abbrev main_v7506 : Ref sig .tc := ⟨.hbm, 8262, rfl⟩
abbrev main_v7507 : Ref sig .tc := ⟨.hbm, 8263, rfl⟩
abbrev main_v7508 : Ref sig .tc := ⟨.hbm, 8264, rfl⟩
abbrev main_v7509 : Ref sig .tc := ⟨.hbm, 8265, rfl⟩
abbrev main_v7510 : Ref sig .tc := ⟨.hbm, 8266, rfl⟩
abbrev main_v7511 : Ref sig .tc := ⟨.hbm, 8267, rfl⟩
abbrev main_v7512 : Ref sig .tc := ⟨.hbm, 8268, rfl⟩
abbrev main_v7513 : Ref sig .tc := ⟨.hbm, 8269, rfl⟩
abbrev main_v7514 : Ref sig .tc := ⟨.hbm, 8270, rfl⟩
abbrev main_v7515 : Ref sig .tc := ⟨.hbm, 8271, rfl⟩
abbrev main_v7516 : Ref sig .tc := ⟨.hbm, 8272, rfl⟩
abbrev main_v7517 : Ref sig .tc := ⟨.hbm, 8273, rfl⟩
abbrev main_v7518 : Ref sig .tc := ⟨.hbm, 8274, rfl⟩
abbrev main_v7519 : Ref sig .tc := ⟨.hbm, 8275, rfl⟩
abbrev main_v7520 : Ref sig .tc := ⟨.hbm, 8276, rfl⟩
abbrev main_cst_750 : Ref sig .tc := ⟨.hbm, 8277, rfl⟩
abbrev main_v7521 : Ref sig .tc := ⟨.hbm, 8278, rfl⟩
abbrev main_c_751 : Ref sig .tc := ⟨.hbm, 8279, rfl⟩
abbrev main_v7522 : Ref sig .tc := ⟨.hbm, 8280, rfl⟩
abbrev main_v7523 : Ref sig .tc := ⟨.hbm, 8281, rfl⟩
abbrev main_v7524 : Ref sig .tc := ⟨.hbm, 8282, rfl⟩
abbrev main_v7525 : Ref sig .tc := ⟨.hbm, 8283, rfl⟩
abbrev main_v7526 : Ref sig .tc := ⟨.hbm, 8284, rfl⟩
abbrev main_v7527 : Ref sig .tc := ⟨.hbm, 8285, rfl⟩
abbrev main_v7528 : Ref sig .tc := ⟨.hbm, 8286, rfl⟩
abbrev main_v7529 : Ref sig .tc := ⟨.hbm, 8287, rfl⟩
abbrev main_v7530 : Ref sig .tc := ⟨.hbm, 8288, rfl⟩
abbrev main_v7531 : Ref sig .tc := ⟨.hbm, 8289, rfl⟩
abbrev main_v7532 : Ref sig .tc := ⟨.hbm, 8290, rfl⟩
abbrev main_v7533 : Ref sig .tc := ⟨.hbm, 8291, rfl⟩
abbrev main_v7534 : Ref sig .tc := ⟨.hbm, 8292, rfl⟩
abbrev main_v7535 : Ref sig .tc := ⟨.hbm, 8293, rfl⟩
abbrev main_v7536 : Ref sig .tc := ⟨.hbm, 8294, rfl⟩
abbrev main_v7537 : Ref sig .tc := ⟨.hbm, 8295, rfl⟩
abbrev main_v7538 : Ref sig .tc := ⟨.hbm, 8296, rfl⟩
abbrev main_v7539 : Ref sig .tc := ⟨.hbm, 8297, rfl⟩
abbrev main_v7540 : Ref sig .tc := ⟨.hbm, 8298, rfl⟩
abbrev main_cst_752 : Ref sig .tc := ⟨.hbm, 8299, rfl⟩
abbrev main_v7541 : Ref sig .tc := ⟨.hbm, 8300, rfl⟩
abbrev main_c_753 : Ref sig .tc := ⟨.hbm, 8301, rfl⟩
abbrev main_v7542 : Ref sig .tc := ⟨.hbm, 8302, rfl⟩
abbrev main_v7543 : Ref sig .tc := ⟨.hbm, 8303, rfl⟩
abbrev main_v7544 : Ref sig .tc := ⟨.hbm, 8304, rfl⟩
abbrev main_v7545 : Ref sig .tc := ⟨.hbm, 8305, rfl⟩
abbrev main_v7546 : Ref sig .tc := ⟨.hbm, 8306, rfl⟩
abbrev main_v7547 : Ref sig .tc := ⟨.hbm, 8307, rfl⟩
abbrev main_v7548 : Ref sig .tc := ⟨.hbm, 8308, rfl⟩
abbrev main_v7549 : Ref sig .tc := ⟨.hbm, 8309, rfl⟩
abbrev main_v7550 : Ref sig .tc := ⟨.hbm, 8310, rfl⟩
abbrev main_v7551 : Ref sig .tc := ⟨.hbm, 8311, rfl⟩
abbrev main_v7552 : Ref sig .tc := ⟨.hbm, 8312, rfl⟩
abbrev main_v7553 : Ref sig .tc := ⟨.hbm, 8313, rfl⟩
abbrev main_v7554 : Ref sig .tc := ⟨.hbm, 8314, rfl⟩
abbrev main_v7555 : Ref sig .tc := ⟨.hbm, 8315, rfl⟩
abbrev main_v7556 : Ref sig .tc := ⟨.hbm, 8316, rfl⟩
abbrev main_v7557 : Ref sig .tc := ⟨.hbm, 8317, rfl⟩
abbrev main_v7558 : Ref sig .tc := ⟨.hbm, 8318, rfl⟩
abbrev main_v7559 : Ref sig .tc := ⟨.hbm, 8319, rfl⟩
abbrev main_v7560 : Ref sig .tc := ⟨.hbm, 8320, rfl⟩
abbrev main_cst_754 : Ref sig .tc := ⟨.hbm, 8321, rfl⟩
abbrev main_v7561 : Ref sig .tc := ⟨.hbm, 8322, rfl⟩
abbrev main_c_755 : Ref sig .tc := ⟨.hbm, 8323, rfl⟩
abbrev main_v7562 : Ref sig .tc := ⟨.hbm, 8324, rfl⟩
abbrev main_v7563 : Ref sig .tc := ⟨.hbm, 8325, rfl⟩
abbrev main_v7564 : Ref sig .tc := ⟨.hbm, 8326, rfl⟩
abbrev main_v7565 : Ref sig .tc := ⟨.hbm, 8327, rfl⟩
abbrev main_v7566 : Ref sig .tc := ⟨.hbm, 8328, rfl⟩
abbrev main_v7567 : Ref sig .tc := ⟨.hbm, 8329, rfl⟩
abbrev main_v7568 : Ref sig .tc := ⟨.hbm, 8330, rfl⟩
abbrev main_v7569 : Ref sig .tc := ⟨.hbm, 8331, rfl⟩
abbrev main_v7570 : Ref sig .tc := ⟨.hbm, 8332, rfl⟩
abbrev main_v7571 : Ref sig .tc := ⟨.hbm, 8333, rfl⟩
abbrev main_v7572 : Ref sig .tc := ⟨.hbm, 8334, rfl⟩
abbrev main_v7573 : Ref sig .tc := ⟨.hbm, 8335, rfl⟩
abbrev main_v7574 : Ref sig .tc := ⟨.hbm, 8336, rfl⟩
abbrev main_v7575 : Ref sig .tc := ⟨.hbm, 8337, rfl⟩
abbrev main_v7576 : Ref sig .tc := ⟨.hbm, 8338, rfl⟩
abbrev main_v7577 : Ref sig .tc := ⟨.hbm, 8339, rfl⟩
abbrev main_v7578 : Ref sig .tc := ⟨.hbm, 8340, rfl⟩
abbrev main_v7579 : Ref sig .tc := ⟨.hbm, 8341, rfl⟩
abbrev main_v7580 : Ref sig .tc := ⟨.hbm, 8342, rfl⟩
abbrev main_cst_756 : Ref sig .tc := ⟨.hbm, 8343, rfl⟩
abbrev main_v7581 : Ref sig .tc := ⟨.hbm, 8344, rfl⟩
abbrev main_c_757 : Ref sig .tc := ⟨.hbm, 8345, rfl⟩
abbrev main_v7582 : Ref sig .tc := ⟨.hbm, 8346, rfl⟩
abbrev main_v7583 : Ref sig .tc := ⟨.hbm, 8347, rfl⟩
abbrev main_v7584 : Ref sig .tc := ⟨.hbm, 8348, rfl⟩
abbrev main_v7585 : Ref sig .tc := ⟨.hbm, 8349, rfl⟩
abbrev main_v7586 : Ref sig .tc := ⟨.hbm, 8350, rfl⟩
abbrev main_v7587 : Ref sig .tc := ⟨.hbm, 8351, rfl⟩
abbrev main_v7588 : Ref sig .tc := ⟨.hbm, 8352, rfl⟩
abbrev main_v7589 : Ref sig .tc := ⟨.hbm, 8353, rfl⟩
abbrev main_v7590 : Ref sig .tc := ⟨.hbm, 8354, rfl⟩
abbrev main_v7591 : Ref sig .tc := ⟨.hbm, 8355, rfl⟩
abbrev main_v7592 : Ref sig .tc := ⟨.hbm, 8356, rfl⟩
abbrev main_v7593 : Ref sig .tc := ⟨.hbm, 8357, rfl⟩
abbrev main_v7594 : Ref sig .tc := ⟨.hbm, 8358, rfl⟩
abbrev main_v7595 : Ref sig .tc := ⟨.hbm, 8359, rfl⟩
abbrev main_v7596 : Ref sig .tc := ⟨.hbm, 8360, rfl⟩
abbrev main_v7597 : Ref sig .tc := ⟨.hbm, 8361, rfl⟩
abbrev main_v7598 : Ref sig .tc := ⟨.hbm, 8362, rfl⟩
abbrev main_v7599 : Ref sig .tc := ⟨.hbm, 8363, rfl⟩
abbrev main_v7600 : Ref sig .tc := ⟨.hbm, 8364, rfl⟩
abbrev main_cst_758 : Ref sig .tc := ⟨.hbm, 8365, rfl⟩
abbrev main_v7601 : Ref sig .tc := ⟨.hbm, 8366, rfl⟩
abbrev main_c_759 : Ref sig .tc := ⟨.hbm, 8367, rfl⟩
abbrev main_v7602 : Ref sig .tc := ⟨.hbm, 8368, rfl⟩
abbrev main_v7603 : Ref sig .tc := ⟨.hbm, 8369, rfl⟩
abbrev main_v7604 : Ref sig .tc := ⟨.hbm, 8370, rfl⟩
abbrev main_v7605 : Ref sig .tc := ⟨.hbm, 8371, rfl⟩
abbrev main_v7606 : Ref sig .tc := ⟨.hbm, 8372, rfl⟩
abbrev main_v7607 : Ref sig .tc := ⟨.hbm, 8373, rfl⟩
abbrev main_v7608 : Ref sig .tc := ⟨.hbm, 8374, rfl⟩
abbrev main_v7609 : Ref sig .tc := ⟨.hbm, 8375, rfl⟩
abbrev main_v7610 : Ref sig .tc := ⟨.hbm, 8376, rfl⟩
abbrev main_v7611 : Ref sig .tc := ⟨.hbm, 8377, rfl⟩
abbrev main_v7612 : Ref sig .tc := ⟨.hbm, 8378, rfl⟩
abbrev main_v7613 : Ref sig .tc := ⟨.hbm, 8379, rfl⟩
abbrev main_v7614 : Ref sig .tc := ⟨.hbm, 8380, rfl⟩
abbrev main_v7615 : Ref sig .tc := ⟨.hbm, 8381, rfl⟩
abbrev main_v7616 : Ref sig .tc := ⟨.hbm, 8382, rfl⟩
abbrev main_v7617 : Ref sig .tc := ⟨.hbm, 8383, rfl⟩
abbrev main_v7618 : Ref sig .tc := ⟨.hbm, 8384, rfl⟩
abbrev main_v7619 : Ref sig .tc := ⟨.hbm, 8385, rfl⟩
abbrev main_v7620 : Ref sig .tc := ⟨.hbm, 8386, rfl⟩
abbrev main_cst_760 : Ref sig .tc := ⟨.hbm, 8387, rfl⟩
abbrev main_v7621 : Ref sig .tc := ⟨.hbm, 8388, rfl⟩
abbrev main_c_761 : Ref sig .tc := ⟨.hbm, 8389, rfl⟩
abbrev main_v7622 : Ref sig .tc := ⟨.hbm, 8390, rfl⟩
abbrev main_v7623 : Ref sig .tc := ⟨.hbm, 8391, rfl⟩
abbrev main_v7624 : Ref sig .tc := ⟨.hbm, 8392, rfl⟩
abbrev main_v7625 : Ref sig .tc := ⟨.hbm, 8393, rfl⟩
abbrev main_v7626 : Ref sig .tc := ⟨.hbm, 8394, rfl⟩
abbrev main_v7627 : Ref sig .tc := ⟨.hbm, 8395, rfl⟩
abbrev main_v7628 : Ref sig .tc := ⟨.hbm, 8396, rfl⟩
abbrev main_v7629 : Ref sig .tc := ⟨.hbm, 8397, rfl⟩
abbrev main_v7630 : Ref sig .tc := ⟨.hbm, 8398, rfl⟩
abbrev main_v7631 : Ref sig .tc := ⟨.hbm, 8399, rfl⟩
abbrev main_v7632 : Ref sig .tc := ⟨.hbm, 8400, rfl⟩
abbrev main_v7633 : Ref sig .tc := ⟨.hbm, 8401, rfl⟩
abbrev main_v7634 : Ref sig .tc := ⟨.hbm, 8402, rfl⟩
abbrev main_v7635 : Ref sig .tc := ⟨.hbm, 8403, rfl⟩
abbrev main_v7636 : Ref sig .tc := ⟨.hbm, 8404, rfl⟩
abbrev main_v7637 : Ref sig .tc := ⟨.hbm, 8405, rfl⟩
abbrev main_v7638 : Ref sig .tc := ⟨.hbm, 8406, rfl⟩
abbrev main_v7639 : Ref sig .tc := ⟨.hbm, 8407, rfl⟩
abbrev main_v7640 : Ref sig .tc := ⟨.hbm, 8408, rfl⟩
abbrev main_cst_762 : Ref sig .tc := ⟨.hbm, 8409, rfl⟩
abbrev main_v7641 : Ref sig .tc := ⟨.hbm, 8410, rfl⟩
abbrev main_c_763 : Ref sig .tc := ⟨.hbm, 8411, rfl⟩
abbrev main_v7642 : Ref sig .tc := ⟨.hbm, 8412, rfl⟩
abbrev main_v7643 : Ref sig .tc := ⟨.hbm, 8413, rfl⟩
abbrev main_v7644 : Ref sig .tc := ⟨.hbm, 8414, rfl⟩
abbrev main_v7645 : Ref sig .tc := ⟨.hbm, 8415, rfl⟩
abbrev main_v7646 : Ref sig .tc := ⟨.hbm, 8416, rfl⟩
abbrev main_v7647 : Ref sig .tc := ⟨.hbm, 8417, rfl⟩
abbrev main_v7648 : Ref sig .tc := ⟨.hbm, 8418, rfl⟩
abbrev main_v7649 : Ref sig .tc := ⟨.hbm, 8419, rfl⟩
abbrev main_v7650 : Ref sig .tc := ⟨.hbm, 8420, rfl⟩
abbrev main_v7651 : Ref sig .tc := ⟨.hbm, 8421, rfl⟩
abbrev main_v7652 : Ref sig .tc := ⟨.hbm, 8422, rfl⟩
abbrev main_v7653 : Ref sig .tc := ⟨.hbm, 8423, rfl⟩
abbrev main_v7654 : Ref sig .tc := ⟨.hbm, 8424, rfl⟩
abbrev main_v7655 : Ref sig .tc := ⟨.hbm, 8425, rfl⟩
abbrev main_v7656 : Ref sig .tc := ⟨.hbm, 8426, rfl⟩
abbrev main_v7657 : Ref sig .tc := ⟨.hbm, 8427, rfl⟩
abbrev main_v7658 : Ref sig .tc := ⟨.hbm, 8428, rfl⟩
abbrev main_v7659 : Ref sig .tc := ⟨.hbm, 8429, rfl⟩
abbrev main_v7660 : Ref sig .tc := ⟨.hbm, 8430, rfl⟩
abbrev main_cst_764 : Ref sig .tc := ⟨.hbm, 8431, rfl⟩
abbrev main_v7661 : Ref sig .tc := ⟨.hbm, 8432, rfl⟩
abbrev main_c_765 : Ref sig .tc := ⟨.hbm, 8433, rfl⟩
abbrev main_v7662 : Ref sig .tc := ⟨.hbm, 8434, rfl⟩
abbrev main_v7663 : Ref sig .tc := ⟨.hbm, 8435, rfl⟩
abbrev main_v7664 : Ref sig .tc := ⟨.hbm, 8436, rfl⟩
abbrev main_v7665 : Ref sig .tc := ⟨.hbm, 8437, rfl⟩
abbrev main_v7666 : Ref sig .tc := ⟨.hbm, 8438, rfl⟩
abbrev main_v7667 : Ref sig .tc := ⟨.hbm, 8439, rfl⟩
abbrev main_v7668 : Ref sig .tc := ⟨.hbm, 8440, rfl⟩
abbrev main_v7669 : Ref sig .tc := ⟨.hbm, 8441, rfl⟩
abbrev main_v7670 : Ref sig .tc := ⟨.hbm, 8442, rfl⟩
abbrev main_v7671 : Ref sig .tc := ⟨.hbm, 8443, rfl⟩
abbrev main_v7672 : Ref sig .tc := ⟨.hbm, 8444, rfl⟩
abbrev main_v7673 : Ref sig .tc := ⟨.hbm, 8445, rfl⟩
abbrev main_v7674 : Ref sig .tc := ⟨.hbm, 8446, rfl⟩
abbrev main_v7675 : Ref sig .tc := ⟨.hbm, 8447, rfl⟩
abbrev main_v7676 : Ref sig .tc := ⟨.hbm, 8448, rfl⟩
abbrev main_v7677 : Ref sig .tc := ⟨.hbm, 8449, rfl⟩
abbrev main_v7678 : Ref sig .tc := ⟨.hbm, 8450, rfl⟩
abbrev main_v7679 : Ref sig .tc := ⟨.hbm, 8451, rfl⟩
abbrev main_v7680 : Ref sig .tc := ⟨.hbm, 8452, rfl⟩
abbrev main_cst_766 : Ref sig .tc := ⟨.hbm, 8453, rfl⟩
abbrev main_v7681 : Ref sig .tc := ⟨.hbm, 8454, rfl⟩
abbrev main_c_767 : Ref sig .tc := ⟨.hbm, 8455, rfl⟩
abbrev main_v7682 : Ref sig .tc := ⟨.hbm, 8456, rfl⟩
abbrev main_v7683 : Ref sig .tc := ⟨.hbm, 8457, rfl⟩
abbrev main_v7684 : Ref sig .tc := ⟨.hbm, 8458, rfl⟩
abbrev main_v7685 : Ref sig .tc := ⟨.hbm, 8459, rfl⟩
abbrev main_v7686 : Ref sig .tc := ⟨.hbm, 8460, rfl⟩
abbrev main_v7687 : Ref sig .tc := ⟨.hbm, 8461, rfl⟩
abbrev main_v7688 : Ref sig .tc := ⟨.hbm, 8462, rfl⟩
abbrev main_v7689 : Ref sig .tc := ⟨.hbm, 8463, rfl⟩
abbrev main_v7690 : Ref sig .tc := ⟨.hbm, 8464, rfl⟩
abbrev main_v7691 : Ref sig .tc := ⟨.hbm, 8465, rfl⟩
abbrev main_v7692 : Ref sig .tc := ⟨.hbm, 8466, rfl⟩
abbrev main_v7693 : Ref sig .tc := ⟨.hbm, 8467, rfl⟩
abbrev main_v7694 : Ref sig .tc := ⟨.hbm, 8468, rfl⟩
abbrev main_v7695 : Ref sig .tc := ⟨.hbm, 8469, rfl⟩
abbrev main_v7696 : Ref sig .tc := ⟨.hbm, 8470, rfl⟩
abbrev main_v7697 : Ref sig .tc := ⟨.hbm, 8471, rfl⟩
abbrev main_v7698 : Ref sig .tc := ⟨.hbm, 8472, rfl⟩
abbrev main_v7699 : Ref sig .tc := ⟨.hbm, 8473, rfl⟩
abbrev main_v7700 : Ref sig .tc := ⟨.hbm, 8474, rfl⟩
abbrev main_cst_768 : Ref sig .tc := ⟨.hbm, 8475, rfl⟩
abbrev main_v7701 : Ref sig .tc := ⟨.hbm, 8476, rfl⟩
abbrev main_c_769 : Ref sig .tc := ⟨.hbm, 8477, rfl⟩
abbrev main_v7702 : Ref sig .tc := ⟨.hbm, 8478, rfl⟩
abbrev main_v7703 : Ref sig .tc := ⟨.hbm, 8479, rfl⟩
abbrev main_v7704 : Ref sig .tc := ⟨.hbm, 8480, rfl⟩
abbrev main_v7705 : Ref sig .tc := ⟨.hbm, 8481, rfl⟩
abbrev main_v7706 : Ref sig .tc := ⟨.hbm, 8482, rfl⟩
abbrev main_v7707 : Ref sig .tc := ⟨.hbm, 8483, rfl⟩
abbrev main_v7708 : Ref sig .tc := ⟨.hbm, 8484, rfl⟩
abbrev main_v7709 : Ref sig .tc := ⟨.hbm, 8485, rfl⟩
abbrev main_v7710 : Ref sig .tc := ⟨.hbm, 8486, rfl⟩
abbrev main_v7711 : Ref sig .tc := ⟨.hbm, 8487, rfl⟩
abbrev main_v7712 : Ref sig .tc := ⟨.hbm, 8488, rfl⟩
abbrev main_v7713 : Ref sig .tc := ⟨.hbm, 8489, rfl⟩
abbrev main_v7714 : Ref sig .tc := ⟨.hbm, 8490, rfl⟩
abbrev main_v7715 : Ref sig .tc := ⟨.hbm, 8491, rfl⟩
abbrev main_v7716 : Ref sig .tc := ⟨.hbm, 8492, rfl⟩
abbrev main_v7717 : Ref sig .tc := ⟨.hbm, 8493, rfl⟩
abbrev main_v7718 : Ref sig .tc := ⟨.hbm, 8494, rfl⟩
abbrev main_v7719 : Ref sig .tc := ⟨.hbm, 8495, rfl⟩
abbrev main_v7720 : Ref sig .tc := ⟨.hbm, 8496, rfl⟩
abbrev main_cst_770 : Ref sig .tc := ⟨.hbm, 8497, rfl⟩
abbrev main_v7721 : Ref sig .tc := ⟨.hbm, 8498, rfl⟩
abbrev main_c_771 : Ref sig .tc := ⟨.hbm, 8499, rfl⟩
abbrev main_v7722 : Ref sig .tc := ⟨.hbm, 8500, rfl⟩
abbrev main_v7723 : Ref sig .tc := ⟨.hbm, 8501, rfl⟩
abbrev main_v7724 : Ref sig .tc := ⟨.hbm, 8502, rfl⟩
abbrev main_v7725 : Ref sig .tc := ⟨.hbm, 8503, rfl⟩
abbrev main_v7726 : Ref sig .tc := ⟨.hbm, 8504, rfl⟩
abbrev main_v7727 : Ref sig .tc := ⟨.hbm, 8505, rfl⟩
abbrev main_v7728 : Ref sig .tc := ⟨.hbm, 8506, rfl⟩
abbrev main_v7729 : Ref sig .tc := ⟨.hbm, 8507, rfl⟩
abbrev main_v7730 : Ref sig .tc := ⟨.hbm, 8508, rfl⟩
abbrev main_v7731 : Ref sig .tc := ⟨.hbm, 8509, rfl⟩
abbrev main_v7732 : Ref sig .tc := ⟨.hbm, 8510, rfl⟩
abbrev main_v7733 : Ref sig .tc := ⟨.hbm, 8511, rfl⟩
abbrev main_v7734 : Ref sig .tc := ⟨.hbm, 8512, rfl⟩
abbrev main_v7735 : Ref sig .tc := ⟨.hbm, 8513, rfl⟩
abbrev main_v7736 : Ref sig .tc := ⟨.hbm, 8514, rfl⟩
abbrev main_v7737 : Ref sig .tc := ⟨.hbm, 8515, rfl⟩
abbrev main_v7738 : Ref sig .tc := ⟨.hbm, 8516, rfl⟩
abbrev main_v7739 : Ref sig .tc := ⟨.hbm, 8517, rfl⟩
abbrev main_v7740 : Ref sig .tc := ⟨.hbm, 8518, rfl⟩
abbrev main_cst_772 : Ref sig .tc := ⟨.hbm, 8519, rfl⟩
abbrev main_v7741 : Ref sig .tc := ⟨.hbm, 8520, rfl⟩
abbrev main_c_773 : Ref sig .tc := ⟨.hbm, 8521, rfl⟩
abbrev main_v7742 : Ref sig .tc := ⟨.hbm, 8522, rfl⟩
abbrev main_v7743 : Ref sig .tc := ⟨.hbm, 8523, rfl⟩
abbrev main_v7744 : Ref sig .tc := ⟨.hbm, 8524, rfl⟩
abbrev main_v7745 : Ref sig .tc := ⟨.hbm, 8525, rfl⟩
abbrev main_v7746 : Ref sig .tc := ⟨.hbm, 8526, rfl⟩
abbrev main_v7747 : Ref sig .tc := ⟨.hbm, 8527, rfl⟩
abbrev main_v7748 : Ref sig .tc := ⟨.hbm, 8528, rfl⟩
abbrev main_v7749 : Ref sig .tc := ⟨.hbm, 8529, rfl⟩
abbrev main_v7750 : Ref sig .tc := ⟨.hbm, 8530, rfl⟩
abbrev main_v7751 : Ref sig .tc := ⟨.hbm, 8531, rfl⟩
abbrev main_v7752 : Ref sig .tc := ⟨.hbm, 8532, rfl⟩
abbrev main_v7753 : Ref sig .tc := ⟨.hbm, 8533, rfl⟩
abbrev main_v7754 : Ref sig .tc := ⟨.hbm, 8534, rfl⟩
abbrev main_v7755 : Ref sig .tc := ⟨.hbm, 8535, rfl⟩
abbrev main_v7756 : Ref sig .tc := ⟨.hbm, 8536, rfl⟩
abbrev main_v7757 : Ref sig .tc := ⟨.hbm, 8537, rfl⟩
abbrev main_v7758 : Ref sig .tc := ⟨.hbm, 8538, rfl⟩
abbrev main_v7759 : Ref sig .tc := ⟨.hbm, 8539, rfl⟩
abbrev main_v7760 : Ref sig .tc := ⟨.hbm, 8540, rfl⟩
abbrev main_cst_774 : Ref sig .tc := ⟨.hbm, 8541, rfl⟩
abbrev main_v7761 : Ref sig .tc := ⟨.hbm, 8542, rfl⟩
abbrev main_c_775 : Ref sig .tc := ⟨.hbm, 8543, rfl⟩
abbrev main_v7762 : Ref sig .tc := ⟨.hbm, 8544, rfl⟩
abbrev main_v7763 : Ref sig .tc := ⟨.hbm, 8545, rfl⟩
abbrev main_v7764 : Ref sig .tc := ⟨.hbm, 8546, rfl⟩
abbrev main_v7765 : Ref sig .tc := ⟨.hbm, 8547, rfl⟩
abbrev main_v7766 : Ref sig .tc := ⟨.hbm, 8548, rfl⟩
abbrev main_v7767 : Ref sig .tc := ⟨.hbm, 8549, rfl⟩
abbrev main_v7768 : Ref sig .tc := ⟨.hbm, 8550, rfl⟩
abbrev main_v7769 : Ref sig .tc := ⟨.hbm, 8551, rfl⟩
abbrev main_v7770 : Ref sig .tc := ⟨.hbm, 8552, rfl⟩
abbrev main_v7771 : Ref sig .tc := ⟨.hbm, 8553, rfl⟩
abbrev main_v7772 : Ref sig .tc := ⟨.hbm, 8554, rfl⟩
abbrev main_v7773 : Ref sig .tc := ⟨.hbm, 8555, rfl⟩
abbrev main_v7774 : Ref sig .tc := ⟨.hbm, 8556, rfl⟩
abbrev main_v7775 : Ref sig .tc := ⟨.hbm, 8557, rfl⟩
abbrev main_v7776 : Ref sig .tc := ⟨.hbm, 8558, rfl⟩
abbrev main_v7777 : Ref sig .tc := ⟨.hbm, 8559, rfl⟩
abbrev main_v7778 : Ref sig .tc := ⟨.hbm, 8560, rfl⟩
abbrev main_v7779 : Ref sig .tc := ⟨.hbm, 8561, rfl⟩
abbrev main_v7780 : Ref sig .tc := ⟨.hbm, 8562, rfl⟩
abbrev main_cst_776 : Ref sig .tc := ⟨.hbm, 8563, rfl⟩
abbrev main_v7781 : Ref sig .tc := ⟨.hbm, 8564, rfl⟩
abbrev main_c_777 : Ref sig .tc := ⟨.hbm, 8565, rfl⟩
abbrev main_v7782 : Ref sig .tc := ⟨.hbm, 8566, rfl⟩
abbrev main_v7783 : Ref sig .tc := ⟨.hbm, 8567, rfl⟩
abbrev main_v7784 : Ref sig .tc := ⟨.hbm, 8568, rfl⟩
abbrev main_v7785 : Ref sig .tc := ⟨.hbm, 8569, rfl⟩
abbrev main_v7786 : Ref sig .tc := ⟨.hbm, 8570, rfl⟩
abbrev main_v7787 : Ref sig .tc := ⟨.hbm, 8571, rfl⟩
abbrev main_v7788 : Ref sig .tc := ⟨.hbm, 8572, rfl⟩
abbrev main_v7789 : Ref sig .tc := ⟨.hbm, 8573, rfl⟩
abbrev main_v7790 : Ref sig .tc := ⟨.hbm, 8574, rfl⟩
abbrev main_v7791 : Ref sig .tc := ⟨.hbm, 8575, rfl⟩
abbrev main_v7792 : Ref sig .tc := ⟨.hbm, 8576, rfl⟩
abbrev main_v7793 : Ref sig .tc := ⟨.hbm, 8577, rfl⟩
abbrev main_v7794 : Ref sig .tc := ⟨.hbm, 8578, rfl⟩
abbrev main_v7795 : Ref sig .tc := ⟨.hbm, 8579, rfl⟩
abbrev main_v7796 : Ref sig .tc := ⟨.hbm, 8580, rfl⟩
abbrev main_v7797 : Ref sig .tc := ⟨.hbm, 8581, rfl⟩
abbrev main_v7798 : Ref sig .tc := ⟨.hbm, 8582, rfl⟩
abbrev main_v7799 : Ref sig .tc := ⟨.hbm, 8583, rfl⟩
abbrev main_v7800 : Ref sig .tc := ⟨.hbm, 8584, rfl⟩
abbrev main_cst_778 : Ref sig .tc := ⟨.hbm, 8585, rfl⟩
abbrev main_v7801 : Ref sig .tc := ⟨.hbm, 8586, rfl⟩
abbrev main_c_779 : Ref sig .tc := ⟨.hbm, 8587, rfl⟩
abbrev main_v7802 : Ref sig .tc := ⟨.hbm, 8588, rfl⟩
abbrev main_v7803 : Ref sig .tc := ⟨.hbm, 8589, rfl⟩
abbrev main_v7804 : Ref sig .tc := ⟨.hbm, 8590, rfl⟩
abbrev main_v7805 : Ref sig .tc := ⟨.hbm, 8591, rfl⟩
abbrev main_v7806 : Ref sig .tc := ⟨.hbm, 8592, rfl⟩
abbrev main_v7807 : Ref sig .tc := ⟨.hbm, 8593, rfl⟩
abbrev main_v7808 : Ref sig .tc := ⟨.hbm, 8594, rfl⟩
abbrev main_v7809 : Ref sig .tc := ⟨.hbm, 8595, rfl⟩
abbrev main_v7810 : Ref sig .tc := ⟨.hbm, 8596, rfl⟩
abbrev main_v7811 : Ref sig .tc := ⟨.hbm, 8597, rfl⟩
abbrev main_v7812 : Ref sig .tc := ⟨.hbm, 8598, rfl⟩
abbrev main_v7813 : Ref sig .tc := ⟨.hbm, 8599, rfl⟩
abbrev main_v7814 : Ref sig .tc := ⟨.hbm, 8600, rfl⟩
abbrev main_v7815 : Ref sig .tc := ⟨.hbm, 8601, rfl⟩
abbrev main_v7816 : Ref sig .tc := ⟨.hbm, 8602, rfl⟩
abbrev main_v7817 : Ref sig .tc := ⟨.hbm, 8603, rfl⟩
abbrev main_v7818 : Ref sig .tc := ⟨.hbm, 8604, rfl⟩
abbrev main_v7819 : Ref sig .tc := ⟨.hbm, 8605, rfl⟩
abbrev main_v7820 : Ref sig .tc := ⟨.hbm, 8606, rfl⟩
abbrev main_cst_780 : Ref sig .tc := ⟨.hbm, 8607, rfl⟩
abbrev main_v7821 : Ref sig .tc := ⟨.hbm, 8608, rfl⟩
abbrev main_c_781 : Ref sig .tc := ⟨.hbm, 8609, rfl⟩
abbrev main_v7822 : Ref sig .tc := ⟨.hbm, 8610, rfl⟩
abbrev main_v7823 : Ref sig .tc := ⟨.hbm, 8611, rfl⟩
abbrev main_v7824 : Ref sig .tc := ⟨.hbm, 8612, rfl⟩
abbrev main_v7825 : Ref sig .tc := ⟨.hbm, 8613, rfl⟩
abbrev main_v7826 : Ref sig .tc := ⟨.hbm, 8614, rfl⟩
abbrev main_v7827 : Ref sig .tc := ⟨.hbm, 8615, rfl⟩
abbrev main_v7828 : Ref sig .tc := ⟨.hbm, 8616, rfl⟩
abbrev main_v7829 : Ref sig .tc := ⟨.hbm, 8617, rfl⟩
abbrev main_v7830 : Ref sig .tc := ⟨.hbm, 8618, rfl⟩
abbrev main_v7831 : Ref sig .tc := ⟨.hbm, 8619, rfl⟩
abbrev main_v7832 : Ref sig .tc := ⟨.hbm, 8620, rfl⟩
abbrev main_v7833 : Ref sig .tc := ⟨.hbm, 8621, rfl⟩
abbrev main_v7834 : Ref sig .tc := ⟨.hbm, 8622, rfl⟩
abbrev main_v7835 : Ref sig .tc := ⟨.hbm, 8623, rfl⟩
abbrev main_v7836 : Ref sig .tc := ⟨.hbm, 8624, rfl⟩
abbrev main_v7837 : Ref sig .tc := ⟨.hbm, 8625, rfl⟩
abbrev main_v7838 : Ref sig .tc := ⟨.hbm, 8626, rfl⟩
abbrev main_v7839 : Ref sig .tc := ⟨.hbm, 8627, rfl⟩
abbrev main_v7840 : Ref sig .tc := ⟨.hbm, 8628, rfl⟩
abbrev main_cst_782 : Ref sig .tc := ⟨.hbm, 8629, rfl⟩
abbrev main_v7841 : Ref sig .tc := ⟨.hbm, 8630, rfl⟩
abbrev main_c_783 : Ref sig .tc := ⟨.hbm, 8631, rfl⟩
abbrev main_v7842 : Ref sig .tc := ⟨.hbm, 8632, rfl⟩
abbrev main_v7843 : Ref sig .tc := ⟨.hbm, 8633, rfl⟩
abbrev main_v7844 : Ref sig .tc := ⟨.hbm, 8634, rfl⟩
abbrev main_v7845 : Ref sig .tc := ⟨.hbm, 8635, rfl⟩
abbrev main_v7846 : Ref sig .tc := ⟨.hbm, 8636, rfl⟩
abbrev main_v7847 : Ref sig .tc := ⟨.hbm, 8637, rfl⟩
abbrev main_v7848 : Ref sig .tc := ⟨.hbm, 8638, rfl⟩
abbrev main_v7849 : Ref sig .tc := ⟨.hbm, 8639, rfl⟩
abbrev main_v7850 : Ref sig .tc := ⟨.hbm, 8640, rfl⟩
abbrev main_v7851 : Ref sig .tc := ⟨.hbm, 8641, rfl⟩
abbrev main_v7852 : Ref sig .tc := ⟨.hbm, 8642, rfl⟩
abbrev main_v7853 : Ref sig .tc := ⟨.hbm, 8643, rfl⟩
abbrev main_v7854 : Ref sig .tc := ⟨.hbm, 8644, rfl⟩
abbrev main_v7855 : Ref sig .tc := ⟨.hbm, 8645, rfl⟩
abbrev main_v7856 : Ref sig .tc := ⟨.hbm, 8646, rfl⟩
abbrev main_v7857 : Ref sig .tc := ⟨.hbm, 8647, rfl⟩
abbrev main_v7858 : Ref sig .tc := ⟨.hbm, 8648, rfl⟩
abbrev main_v7859 : Ref sig .tc := ⟨.hbm, 8649, rfl⟩
abbrev main_v7860 : Ref sig .tc := ⟨.hbm, 8650, rfl⟩
abbrev main_cst_784 : Ref sig .tc := ⟨.hbm, 8651, rfl⟩
abbrev main_v7861 : Ref sig .tc := ⟨.hbm, 8652, rfl⟩
abbrev main_c_785 : Ref sig .tc := ⟨.hbm, 8653, rfl⟩
abbrev main_v7862 : Ref sig .tc := ⟨.hbm, 8654, rfl⟩
abbrev main_v7863 : Ref sig .tc := ⟨.hbm, 8655, rfl⟩
abbrev main_v7864 : Ref sig .tc := ⟨.hbm, 8656, rfl⟩
abbrev main_v7865 : Ref sig .tc := ⟨.hbm, 8657, rfl⟩
abbrev main_v7866 : Ref sig .tc := ⟨.hbm, 8658, rfl⟩
abbrev main_v7867 : Ref sig .tc := ⟨.hbm, 8659, rfl⟩
abbrev main_v7868 : Ref sig .tc := ⟨.hbm, 8660, rfl⟩
abbrev main_v7869 : Ref sig .tc := ⟨.hbm, 8661, rfl⟩
abbrev main_v7870 : Ref sig .tc := ⟨.hbm, 8662, rfl⟩
abbrev main_v7871 : Ref sig .tc := ⟨.hbm, 8663, rfl⟩
abbrev main_v7872 : Ref sig .tc := ⟨.hbm, 8664, rfl⟩
abbrev main_v7873 : Ref sig .tc := ⟨.hbm, 8665, rfl⟩
abbrev main_v7874 : Ref sig .tc := ⟨.hbm, 8666, rfl⟩
abbrev main_v7875 : Ref sig .tc := ⟨.hbm, 8667, rfl⟩
abbrev main_v7876 : Ref sig .tc := ⟨.hbm, 8668, rfl⟩
abbrev main_v7877 : Ref sig .tc := ⟨.hbm, 8669, rfl⟩
abbrev main_v7878 : Ref sig .tc := ⟨.hbm, 8670, rfl⟩
abbrev main_v7879 : Ref sig .tc := ⟨.hbm, 8671, rfl⟩
abbrev main_v7880 : Ref sig .tc := ⟨.hbm, 8672, rfl⟩
abbrev main_cst_786 : Ref sig .tc := ⟨.hbm, 8673, rfl⟩
abbrev main_v7881 : Ref sig .tc := ⟨.hbm, 8674, rfl⟩
abbrev main_c_787 : Ref sig .tc := ⟨.hbm, 8675, rfl⟩
abbrev main_v7882 : Ref sig .tc := ⟨.hbm, 8676, rfl⟩
abbrev main_v7883 : Ref sig .tc := ⟨.hbm, 8677, rfl⟩
abbrev main_v7884 : Ref sig .tc := ⟨.hbm, 8678, rfl⟩
abbrev main_v7885 : Ref sig .tc := ⟨.hbm, 8679, rfl⟩
abbrev main_v7886 : Ref sig .tc := ⟨.hbm, 8680, rfl⟩
abbrev main_v7887 : Ref sig .tc := ⟨.hbm, 8681, rfl⟩
abbrev main_v7888 : Ref sig .tc := ⟨.hbm, 8682, rfl⟩
abbrev main_v7889 : Ref sig .tc := ⟨.hbm, 8683, rfl⟩
abbrev main_v7890 : Ref sig .tc := ⟨.hbm, 8684, rfl⟩
abbrev main_v7891 : Ref sig .tc := ⟨.hbm, 8685, rfl⟩
abbrev main_v7892 : Ref sig .tc := ⟨.hbm, 8686, rfl⟩
abbrev main_v7893 : Ref sig .tc := ⟨.hbm, 8687, rfl⟩
abbrev main_v7894 : Ref sig .tc := ⟨.hbm, 8688, rfl⟩
abbrev main_v7895 : Ref sig .tc := ⟨.hbm, 8689, rfl⟩
abbrev main_v7896 : Ref sig .tc := ⟨.hbm, 8690, rfl⟩
abbrev main_v7897 : Ref sig .tc := ⟨.hbm, 8691, rfl⟩
abbrev main_v7898 : Ref sig .tc := ⟨.hbm, 8692, rfl⟩
abbrev main_v7899 : Ref sig .tc := ⟨.hbm, 8693, rfl⟩
abbrev main_v7900 : Ref sig .tc := ⟨.hbm, 8694, rfl⟩
abbrev main_cst_788 : Ref sig .tc := ⟨.hbm, 8695, rfl⟩
abbrev main_v7901 : Ref sig .tc := ⟨.hbm, 8696, rfl⟩
abbrev main_c_789 : Ref sig .tc := ⟨.hbm, 8697, rfl⟩
abbrev main_v7902 : Ref sig .tc := ⟨.hbm, 8698, rfl⟩
abbrev main_v7903 : Ref sig .tc := ⟨.hbm, 8699, rfl⟩
abbrev main_v7904 : Ref sig .tc := ⟨.hbm, 8700, rfl⟩
abbrev main_v7905 : Ref sig .tc := ⟨.hbm, 8701, rfl⟩
abbrev main_v7906 : Ref sig .tc := ⟨.hbm, 8702, rfl⟩
abbrev main_v7907 : Ref sig .tc := ⟨.hbm, 8703, rfl⟩
abbrev main_v7908 : Ref sig .tc := ⟨.hbm, 8704, rfl⟩
abbrev main_v7909 : Ref sig .tc := ⟨.hbm, 8705, rfl⟩
abbrev main_v7910 : Ref sig .tc := ⟨.hbm, 8706, rfl⟩
abbrev main_v7911 : Ref sig .tc := ⟨.hbm, 8707, rfl⟩
abbrev main_v7912 : Ref sig .tc := ⟨.hbm, 8708, rfl⟩
abbrev main_v7913 : Ref sig .tc := ⟨.hbm, 8709, rfl⟩
abbrev main_v7914 : Ref sig .tc := ⟨.hbm, 8710, rfl⟩
abbrev main_v7915 : Ref sig .tc := ⟨.hbm, 8711, rfl⟩
abbrev main_v7916 : Ref sig .tc := ⟨.hbm, 8712, rfl⟩
abbrev main_v7917 : Ref sig .tc := ⟨.hbm, 8713, rfl⟩
abbrev main_v7918 : Ref sig .tc := ⟨.hbm, 8714, rfl⟩
abbrev main_v7919 : Ref sig .tc := ⟨.hbm, 8715, rfl⟩
abbrev main_v7920 : Ref sig .tc := ⟨.hbm, 8716, rfl⟩
abbrev main_cst_790 : Ref sig .tc := ⟨.hbm, 8717, rfl⟩
abbrev main_v7921 : Ref sig .tc := ⟨.hbm, 8718, rfl⟩
abbrev main_c_791 : Ref sig .tc := ⟨.hbm, 8719, rfl⟩
abbrev main_v7922 : Ref sig .tc := ⟨.hbm, 8720, rfl⟩
abbrev main_v7923 : Ref sig .tc := ⟨.hbm, 8721, rfl⟩
abbrev main_v7924 : Ref sig .tc := ⟨.hbm, 8722, rfl⟩
abbrev main_v7925 : Ref sig .tc := ⟨.hbm, 8723, rfl⟩
abbrev main_v7926 : Ref sig .tc := ⟨.hbm, 8724, rfl⟩
abbrev main_v7927 : Ref sig .tc := ⟨.hbm, 8725, rfl⟩
abbrev main_v7928 : Ref sig .tc := ⟨.hbm, 8726, rfl⟩
abbrev main_v7929 : Ref sig .tc := ⟨.hbm, 8727, rfl⟩
abbrev main_v7930 : Ref sig .tc := ⟨.hbm, 8728, rfl⟩
abbrev main_v7931 : Ref sig .tc := ⟨.hbm, 8729, rfl⟩
abbrev main_v7932 : Ref sig .tc := ⟨.hbm, 8730, rfl⟩
abbrev main_v7933 : Ref sig .tc := ⟨.hbm, 8731, rfl⟩
abbrev main_v7934 : Ref sig .tc := ⟨.hbm, 8732, rfl⟩
abbrev main_v7935 : Ref sig .tc := ⟨.hbm, 8733, rfl⟩
abbrev main_v7936 : Ref sig .tc := ⟨.hbm, 8734, rfl⟩
abbrev main_v7937 : Ref sig .tc := ⟨.hbm, 8735, rfl⟩
abbrev main_v7938 : Ref sig .tc := ⟨.hbm, 8736, rfl⟩
abbrev main_v7939 : Ref sig .tc := ⟨.hbm, 8737, rfl⟩
abbrev main_v7940 : Ref sig .tc := ⟨.hbm, 8738, rfl⟩
abbrev main_cst_792 : Ref sig .tc := ⟨.hbm, 8739, rfl⟩
abbrev main_v7941 : Ref sig .tc := ⟨.hbm, 8740, rfl⟩
abbrev main_c_793 : Ref sig .tc := ⟨.hbm, 8741, rfl⟩
abbrev main_v7942 : Ref sig .tc := ⟨.hbm, 8742, rfl⟩
abbrev main_v7943 : Ref sig .tc := ⟨.hbm, 8743, rfl⟩
abbrev main_v7944 : Ref sig .tc := ⟨.hbm, 8744, rfl⟩
abbrev main_v7945 : Ref sig .tc := ⟨.hbm, 8745, rfl⟩
abbrev main_v7946 : Ref sig .tc := ⟨.hbm, 8746, rfl⟩
abbrev main_v7947 : Ref sig .tc := ⟨.hbm, 8747, rfl⟩
abbrev main_v7948 : Ref sig .tc := ⟨.hbm, 8748, rfl⟩
abbrev main_v7949 : Ref sig .tc := ⟨.hbm, 8749, rfl⟩
abbrev main_v7950 : Ref sig .tc := ⟨.hbm, 8750, rfl⟩
abbrev main_v7951 : Ref sig .tc := ⟨.hbm, 8751, rfl⟩
abbrev main_v7952 : Ref sig .tc := ⟨.hbm, 8752, rfl⟩
abbrev main_v7953 : Ref sig .tc := ⟨.hbm, 8753, rfl⟩
abbrev main_v7954 : Ref sig .tc := ⟨.hbm, 8754, rfl⟩
abbrev main_v7955 : Ref sig .tc := ⟨.hbm, 8755, rfl⟩
abbrev main_v7956 : Ref sig .tc := ⟨.hbm, 8756, rfl⟩
abbrev main_v7957 : Ref sig .tc := ⟨.hbm, 8757, rfl⟩
abbrev main_v7958 : Ref sig .tc := ⟨.hbm, 8758, rfl⟩
abbrev main_v7959 : Ref sig .tc := ⟨.hbm, 8759, rfl⟩
abbrev main_v7960 : Ref sig .tc := ⟨.hbm, 8760, rfl⟩
abbrev main_cst_794 : Ref sig .tc := ⟨.hbm, 8761, rfl⟩
abbrev main_v7961 : Ref sig .tc := ⟨.hbm, 8762, rfl⟩
abbrev main_c_795 : Ref sig .tc := ⟨.hbm, 8763, rfl⟩
abbrev main_v7962 : Ref sig .tc := ⟨.hbm, 8764, rfl⟩
abbrev main_v7963 : Ref sig .tc := ⟨.hbm, 8765, rfl⟩
abbrev main_v7964 : Ref sig .tc := ⟨.hbm, 8766, rfl⟩
abbrev main_v7965 : Ref sig .tc := ⟨.hbm, 8767, rfl⟩
abbrev main_v7966 : Ref sig .tc := ⟨.hbm, 8768, rfl⟩
abbrev main_v7967 : Ref sig .tc := ⟨.hbm, 8769, rfl⟩
abbrev main_v7968 : Ref sig .tc := ⟨.hbm, 8770, rfl⟩
abbrev main_v7969 : Ref sig .tc := ⟨.hbm, 8771, rfl⟩
abbrev main_v7970 : Ref sig .tc := ⟨.hbm, 8772, rfl⟩
abbrev main_v7971 : Ref sig .tc := ⟨.hbm, 8773, rfl⟩
abbrev main_v7972 : Ref sig .tc := ⟨.hbm, 8774, rfl⟩
abbrev main_v7973 : Ref sig .tc := ⟨.hbm, 8775, rfl⟩
abbrev main_v7974 : Ref sig .tc := ⟨.hbm, 8776, rfl⟩
abbrev main_v7975 : Ref sig .tc := ⟨.hbm, 8777, rfl⟩
abbrev main_v7976 : Ref sig .tc := ⟨.hbm, 8778, rfl⟩
abbrev main_v7977 : Ref sig .tc := ⟨.hbm, 8779, rfl⟩
abbrev main_v7978 : Ref sig .tc := ⟨.hbm, 8780, rfl⟩
abbrev main_v7979 : Ref sig .tc := ⟨.hbm, 8781, rfl⟩
abbrev main_v7980 : Ref sig .tc := ⟨.hbm, 8782, rfl⟩
abbrev main_cst_796 : Ref sig .tc := ⟨.hbm, 8783, rfl⟩
abbrev main_v7981 : Ref sig .tc := ⟨.hbm, 8784, rfl⟩
abbrev main_c_797 : Ref sig .tc := ⟨.hbm, 8785, rfl⟩
abbrev main_v7982 : Ref sig .tc := ⟨.hbm, 8786, rfl⟩
abbrev main_v7983 : Ref sig .tc := ⟨.hbm, 8787, rfl⟩
abbrev main_v7984 : Ref sig .tc := ⟨.hbm, 8788, rfl⟩
abbrev main_v7985 : Ref sig .tc := ⟨.hbm, 8789, rfl⟩
abbrev main_v7986 : Ref sig .tc := ⟨.hbm, 8790, rfl⟩
abbrev main_v7987 : Ref sig .tc := ⟨.hbm, 8791, rfl⟩
abbrev main_v7988 : Ref sig .tc := ⟨.hbm, 8792, rfl⟩
abbrev main_v7989 : Ref sig .tc := ⟨.hbm, 8793, rfl⟩
abbrev main_v7990 : Ref sig .tc := ⟨.hbm, 8794, rfl⟩
abbrev main_v7991 : Ref sig .tc := ⟨.hbm, 8795, rfl⟩
abbrev main_v7992 : Ref sig .tc := ⟨.hbm, 8796, rfl⟩
abbrev main_v7993 : Ref sig .tc := ⟨.hbm, 8797, rfl⟩
abbrev main_v7994 : Ref sig .tc := ⟨.hbm, 8798, rfl⟩
abbrev main_v7995 : Ref sig .tc := ⟨.hbm, 8799, rfl⟩
abbrev main_v7996 : Ref sig .tc := ⟨.hbm, 8800, rfl⟩
abbrev main_v7997 : Ref sig .tc := ⟨.hbm, 8801, rfl⟩
abbrev main_v7998 : Ref sig .tc := ⟨.hbm, 8802, rfl⟩
abbrev main_v7999 : Ref sig .tc := ⟨.hbm, 8803, rfl⟩
abbrev main_v8000 : Ref sig .tc := ⟨.hbm, 8804, rfl⟩
abbrev main_cst_798 : Ref sig .tc := ⟨.hbm, 8805, rfl⟩
abbrev main_v8001 : Ref sig .tc := ⟨.hbm, 8806, rfl⟩
abbrev main_c_799 : Ref sig .tc := ⟨.hbm, 8807, rfl⟩
abbrev main_v8002 : Ref sig .tc := ⟨.hbm, 8808, rfl⟩
abbrev main_v8003 : Ref sig .tc := ⟨.hbm, 8809, rfl⟩
abbrev main_v8004 : Ref sig .tc := ⟨.hbm, 8810, rfl⟩
abbrev main_v8005 : Ref sig .tc := ⟨.hbm, 8811, rfl⟩
abbrev main_v8006 : Ref sig .tc := ⟨.hbm, 8812, rfl⟩
abbrev main_v8007 : Ref sig .tc := ⟨.hbm, 8813, rfl⟩
abbrev main_v8008 : Ref sig .tc := ⟨.hbm, 8814, rfl⟩
abbrev main_v8009 : Ref sig .tc := ⟨.hbm, 8815, rfl⟩
abbrev main_v8010 : Ref sig .tc := ⟨.hbm, 8816, rfl⟩
abbrev main_v8011 : Ref sig .tc := ⟨.hbm, 8817, rfl⟩
abbrev main_v8012 : Ref sig .tc := ⟨.hbm, 8818, rfl⟩
abbrev main_v8013 : Ref sig .tc := ⟨.hbm, 8819, rfl⟩
abbrev main_v8014 : Ref sig .tc := ⟨.hbm, 8820, rfl⟩
abbrev main_v8015 : Ref sig .tc := ⟨.hbm, 8821, rfl⟩
abbrev main_v8016 : Ref sig .tc := ⟨.hbm, 8822, rfl⟩
abbrev main_v8017 : Ref sig .tc := ⟨.hbm, 8823, rfl⟩
abbrev main_v8018 : Ref sig .tc := ⟨.hbm, 8824, rfl⟩
abbrev main_v8019 : Ref sig .tc := ⟨.hbm, 8825, rfl⟩
abbrev main_v8020 : Ref sig .tc := ⟨.hbm, 8826, rfl⟩
abbrev main_cst_800 : Ref sig .tc := ⟨.hbm, 8827, rfl⟩
abbrev main_v8021 : Ref sig .tc := ⟨.hbm, 8828, rfl⟩
abbrev main_c_801 : Ref sig .tc := ⟨.hbm, 8829, rfl⟩
abbrev main_v8022 : Ref sig .tc := ⟨.hbm, 8830, rfl⟩
abbrev main_v8023 : Ref sig .tc := ⟨.hbm, 8831, rfl⟩
abbrev main_v8024 : Ref sig .tc := ⟨.hbm, 8832, rfl⟩
abbrev main_v8025 : Ref sig .tc := ⟨.hbm, 8833, rfl⟩
abbrev main_v8026 : Ref sig .tc := ⟨.hbm, 8834, rfl⟩
abbrev main_v8027 : Ref sig .tc := ⟨.hbm, 8835, rfl⟩
abbrev main_v8028 : Ref sig .tc := ⟨.hbm, 8836, rfl⟩
abbrev main_v8029 : Ref sig .tc := ⟨.hbm, 8837, rfl⟩
abbrev main_v8030 : Ref sig .tc := ⟨.hbm, 8838, rfl⟩
abbrev main_v8031 : Ref sig .tc := ⟨.hbm, 8839, rfl⟩
abbrev main_v8032 : Ref sig .tc := ⟨.hbm, 8840, rfl⟩
abbrev main_v8033 : Ref sig .tc := ⟨.hbm, 8841, rfl⟩
abbrev main_v8034 : Ref sig .tc := ⟨.hbm, 8842, rfl⟩
abbrev main_v8035 : Ref sig .tc := ⟨.hbm, 8843, rfl⟩
abbrev main_v8036 : Ref sig .tc := ⟨.hbm, 8844, rfl⟩
abbrev main_v8037 : Ref sig .tc := ⟨.hbm, 8845, rfl⟩
abbrev main_v8038 : Ref sig .tc := ⟨.hbm, 8846, rfl⟩
abbrev main_v8039 : Ref sig .tc := ⟨.hbm, 8847, rfl⟩
abbrev main_v8040 : Ref sig .tc := ⟨.hbm, 8848, rfl⟩
abbrev main_cst_802 : Ref sig .tc := ⟨.hbm, 8849, rfl⟩
abbrev main_v8041 : Ref sig .tc := ⟨.hbm, 8850, rfl⟩
abbrev main_c_803 : Ref sig .tc := ⟨.hbm, 8851, rfl⟩
abbrev main_v8042 : Ref sig .tc := ⟨.hbm, 8852, rfl⟩
abbrev main_v8043 : Ref sig .tc := ⟨.hbm, 8853, rfl⟩
abbrev main_v8044 : Ref sig .tc := ⟨.hbm, 8854, rfl⟩
abbrev main_v8045 : Ref sig .tc := ⟨.hbm, 8855, rfl⟩
abbrev main_v8046 : Ref sig .tc := ⟨.hbm, 8856, rfl⟩
abbrev main_v8047 : Ref sig .tc := ⟨.hbm, 8857, rfl⟩
abbrev main_v8048 : Ref sig .tc := ⟨.hbm, 8858, rfl⟩
abbrev main_v8049 : Ref sig .tc := ⟨.hbm, 8859, rfl⟩
abbrev main_v8050 : Ref sig .tc := ⟨.hbm, 8860, rfl⟩
abbrev main_v8051 : Ref sig .tc := ⟨.hbm, 8861, rfl⟩
abbrev main_v8052 : Ref sig .tc := ⟨.hbm, 8862, rfl⟩
abbrev main_v8053 : Ref sig .tc := ⟨.hbm, 8863, rfl⟩
abbrev main_v8054 : Ref sig .tc := ⟨.hbm, 8864, rfl⟩
abbrev main_v8055 : Ref sig .tc := ⟨.hbm, 8865, rfl⟩
abbrev main_v8056 : Ref sig .tc := ⟨.hbm, 8866, rfl⟩
abbrev main_v8057 : Ref sig .tc := ⟨.hbm, 8867, rfl⟩
abbrev main_v8058 : Ref sig .tc := ⟨.hbm, 8868, rfl⟩
abbrev main_v8059 : Ref sig .tc := ⟨.hbm, 8869, rfl⟩
abbrev main_v8060 : Ref sig .tc := ⟨.hbm, 8870, rfl⟩
abbrev main_cst_804 : Ref sig .tc := ⟨.hbm, 8871, rfl⟩
abbrev main_v8061 : Ref sig .tc := ⟨.hbm, 8872, rfl⟩
abbrev main_c_805 : Ref sig .tc := ⟨.hbm, 8873, rfl⟩
abbrev main_v8062 : Ref sig .tc := ⟨.hbm, 8874, rfl⟩
abbrev main_v8063 : Ref sig .tc := ⟨.hbm, 8875, rfl⟩
abbrev main_v8064 : Ref sig .tc := ⟨.hbm, 8876, rfl⟩
abbrev main_v8065 : Ref sig .tc := ⟨.hbm, 8877, rfl⟩
abbrev main_v8066 : Ref sig .tc := ⟨.hbm, 8878, rfl⟩
abbrev main_v8067 : Ref sig .tc := ⟨.hbm, 8879, rfl⟩
abbrev main_v8068 : Ref sig .tc := ⟨.hbm, 8880, rfl⟩
abbrev main_v8069 : Ref sig .tc := ⟨.hbm, 8881, rfl⟩
abbrev main_v8070 : Ref sig .tc := ⟨.hbm, 8882, rfl⟩
abbrev main_v8071 : Ref sig .tc := ⟨.hbm, 8883, rfl⟩
abbrev main_v8072 : Ref sig .tc := ⟨.hbm, 8884, rfl⟩
abbrev main_v8073 : Ref sig .tc := ⟨.hbm, 8885, rfl⟩
abbrev main_v8074 : Ref sig .tc := ⟨.hbm, 8886, rfl⟩
abbrev main_v8075 : Ref sig .tc := ⟨.hbm, 8887, rfl⟩
abbrev main_v8076 : Ref sig .tc := ⟨.hbm, 8888, rfl⟩
abbrev main_v8077 : Ref sig .tc := ⟨.hbm, 8889, rfl⟩
abbrev main_v8078 : Ref sig .tc := ⟨.hbm, 8890, rfl⟩
abbrev main_v8079 : Ref sig .tc := ⟨.hbm, 8891, rfl⟩
abbrev main_v8080 : Ref sig .tc := ⟨.hbm, 8892, rfl⟩
abbrev main_cst_806 : Ref sig .tc := ⟨.hbm, 8893, rfl⟩
abbrev main_v8081 : Ref sig .tc := ⟨.hbm, 8894, rfl⟩
abbrev main_c_807 : Ref sig .tc := ⟨.hbm, 8895, rfl⟩
abbrev main_v8082 : Ref sig .tc := ⟨.hbm, 8896, rfl⟩
abbrev main_v8083 : Ref sig .tc := ⟨.hbm, 8897, rfl⟩
abbrev main_v8084 : Ref sig .tc := ⟨.hbm, 8898, rfl⟩
abbrev main_v8085 : Ref sig .tc := ⟨.hbm, 8899, rfl⟩
abbrev main_v8086 : Ref sig .tc := ⟨.hbm, 8900, rfl⟩
abbrev main_v8087 : Ref sig .tc := ⟨.hbm, 8901, rfl⟩
abbrev main_v8088 : Ref sig .tc := ⟨.hbm, 8902, rfl⟩
abbrev main_v8089 : Ref sig .tc := ⟨.hbm, 8903, rfl⟩
abbrev main_v8090 : Ref sig .tc := ⟨.hbm, 8904, rfl⟩
abbrev main_v8091 : Ref sig .tc := ⟨.hbm, 8905, rfl⟩
abbrev main_v8092 : Ref sig .tc := ⟨.hbm, 8906, rfl⟩
abbrev main_v8093 : Ref sig .tc := ⟨.hbm, 8907, rfl⟩
abbrev main_v8094 : Ref sig .tc := ⟨.hbm, 8908, rfl⟩
abbrev main_v8095 : Ref sig .tc := ⟨.hbm, 8909, rfl⟩
abbrev main_v8096 : Ref sig .tc := ⟨.hbm, 8910, rfl⟩
abbrev main_v8097 : Ref sig .tc := ⟨.hbm, 8911, rfl⟩
abbrev main_v8098 : Ref sig .tc := ⟨.hbm, 8912, rfl⟩
abbrev main_v8099 : Ref sig .tc := ⟨.hbm, 8913, rfl⟩
abbrev main_v8100 : Ref sig .tc := ⟨.hbm, 8914, rfl⟩
abbrev main_cst_808 : Ref sig .tc := ⟨.hbm, 8915, rfl⟩
abbrev main_v8101 : Ref sig .tc := ⟨.hbm, 8916, rfl⟩
abbrev main_c_809 : Ref sig .tc := ⟨.hbm, 8917, rfl⟩
abbrev main_v8102 : Ref sig .tc := ⟨.hbm, 8918, rfl⟩
abbrev main_v8103 : Ref sig .tc := ⟨.hbm, 8919, rfl⟩
abbrev main_v8104 : Ref sig .tc := ⟨.hbm, 8920, rfl⟩
abbrev main_v8105 : Ref sig .tc := ⟨.hbm, 8921, rfl⟩
abbrev main_v8106 : Ref sig .tc := ⟨.hbm, 8922, rfl⟩
abbrev main_v8107 : Ref sig .tc := ⟨.hbm, 8923, rfl⟩
abbrev main_v8108 : Ref sig .tc := ⟨.hbm, 8924, rfl⟩
abbrev main_v8109 : Ref sig .tc := ⟨.hbm, 8925, rfl⟩
abbrev main_v8110 : Ref sig .tc := ⟨.hbm, 8926, rfl⟩
abbrev main_v8111 : Ref sig .tc := ⟨.hbm, 8927, rfl⟩
abbrev main_v8112 : Ref sig .tc := ⟨.hbm, 8928, rfl⟩
abbrev main_v8113 : Ref sig .tc := ⟨.hbm, 8929, rfl⟩
abbrev main_v8114 : Ref sig .tc := ⟨.hbm, 8930, rfl⟩
abbrev main_v8115 : Ref sig .tc := ⟨.hbm, 8931, rfl⟩
abbrev main_v8116 : Ref sig .tc := ⟨.hbm, 8932, rfl⟩
abbrev main_v8117 : Ref sig .tc := ⟨.hbm, 8933, rfl⟩
abbrev main_v8118 : Ref sig .tc := ⟨.hbm, 8934, rfl⟩
abbrev main_v8119 : Ref sig .tc := ⟨.hbm, 8935, rfl⟩
abbrev main_v8120 : Ref sig .tc := ⟨.hbm, 8936, rfl⟩
abbrev main_cst_810 : Ref sig .tc := ⟨.hbm, 8937, rfl⟩
abbrev main_v8121 : Ref sig .tc := ⟨.hbm, 8938, rfl⟩
abbrev main_c_811 : Ref sig .tc := ⟨.hbm, 8939, rfl⟩
abbrev main_v8122 : Ref sig .tc := ⟨.hbm, 8940, rfl⟩
abbrev main_v8123 : Ref sig .tc := ⟨.hbm, 8941, rfl⟩
abbrev main_v8124 : Ref sig .tc := ⟨.hbm, 8942, rfl⟩
abbrev main_v8125 : Ref sig .tc := ⟨.hbm, 8943, rfl⟩
abbrev main_v8126 : Ref sig .tc := ⟨.hbm, 8944, rfl⟩
abbrev main_v8127 : Ref sig .tc := ⟨.hbm, 8945, rfl⟩
abbrev main_v8128 : Ref sig .tc := ⟨.hbm, 8946, rfl⟩
abbrev main_v8129 : Ref sig .tc := ⟨.hbm, 8947, rfl⟩
abbrev main_v8130 : Ref sig .tc := ⟨.hbm, 8948, rfl⟩
abbrev main_v8131 : Ref sig .tc := ⟨.hbm, 8949, rfl⟩
abbrev main_v8132 : Ref sig .tc := ⟨.hbm, 8950, rfl⟩
abbrev main_v8133 : Ref sig .tc := ⟨.hbm, 8951, rfl⟩
abbrev main_v8134 : Ref sig .tc := ⟨.hbm, 8952, rfl⟩
abbrev main_v8135 : Ref sig .tc := ⟨.hbm, 8953, rfl⟩
abbrev main_v8136 : Ref sig .tc := ⟨.hbm, 8954, rfl⟩
abbrev main_v8137 : Ref sig .tc := ⟨.hbm, 8955, rfl⟩
abbrev main_v8138 : Ref sig .tc := ⟨.hbm, 8956, rfl⟩
abbrev main_v8139 : Ref sig .tc := ⟨.hbm, 8957, rfl⟩
abbrev main_v8140 : Ref sig .tc := ⟨.hbm, 8958, rfl⟩
abbrev main_cst_812 : Ref sig .tc := ⟨.hbm, 8959, rfl⟩
abbrev main_v8141 : Ref sig .tc := ⟨.hbm, 8960, rfl⟩
abbrev main_c_813 : Ref sig .tc := ⟨.hbm, 8961, rfl⟩
abbrev main_v8142 : Ref sig .tc := ⟨.hbm, 8962, rfl⟩
abbrev main_v8143 : Ref sig .tc := ⟨.hbm, 8963, rfl⟩
abbrev main_v8144 : Ref sig .tc := ⟨.hbm, 8964, rfl⟩
abbrev main_v8145 : Ref sig .tc := ⟨.hbm, 8965, rfl⟩
abbrev main_v8146 : Ref sig .tc := ⟨.hbm, 8966, rfl⟩
abbrev main_v8147 : Ref sig .tc := ⟨.hbm, 8967, rfl⟩
abbrev main_v8148 : Ref sig .tc := ⟨.hbm, 8968, rfl⟩
abbrev main_v8149 : Ref sig .tc := ⟨.hbm, 8969, rfl⟩
abbrev main_v8150 : Ref sig .tc := ⟨.hbm, 8970, rfl⟩
abbrev main_v8151 : Ref sig .tc := ⟨.hbm, 8971, rfl⟩
abbrev main_v8152 : Ref sig .tc := ⟨.hbm, 8972, rfl⟩
abbrev main_v8153 : Ref sig .tc := ⟨.hbm, 8973, rfl⟩
abbrev main_v8154 : Ref sig .tc := ⟨.hbm, 8974, rfl⟩
abbrev main_v8155 : Ref sig .tc := ⟨.hbm, 8975, rfl⟩
abbrev main_v8156 : Ref sig .tc := ⟨.hbm, 8976, rfl⟩
abbrev main_v8157 : Ref sig .tc := ⟨.hbm, 8977, rfl⟩
abbrev main_v8158 : Ref sig .tc := ⟨.hbm, 8978, rfl⟩
abbrev main_v8159 : Ref sig .tc := ⟨.hbm, 8979, rfl⟩
abbrev main_v8160 : Ref sig .tc := ⟨.hbm, 8980, rfl⟩
abbrev main_cst_814 : Ref sig .tc := ⟨.hbm, 8981, rfl⟩
abbrev main_v8161 : Ref sig .tc := ⟨.hbm, 8982, rfl⟩
abbrev main_c_815 : Ref sig .tc := ⟨.hbm, 8983, rfl⟩
abbrev main_v8162 : Ref sig .tc := ⟨.hbm, 8984, rfl⟩
abbrev main_v8163 : Ref sig .tc := ⟨.hbm, 8985, rfl⟩
abbrev main_v8164 : Ref sig .tc := ⟨.hbm, 8986, rfl⟩
abbrev main_v8165 : Ref sig .tc := ⟨.hbm, 8987, rfl⟩
abbrev main_v8166 : Ref sig .tc := ⟨.hbm, 8988, rfl⟩
abbrev main_v8167 : Ref sig .tc := ⟨.hbm, 8989, rfl⟩
abbrev main_v8168 : Ref sig .tc := ⟨.hbm, 8990, rfl⟩
abbrev main_v8169 : Ref sig .tc := ⟨.hbm, 8991, rfl⟩
abbrev main_v8170 : Ref sig .tc := ⟨.hbm, 8992, rfl⟩
abbrev main_v8171 : Ref sig .tc := ⟨.hbm, 8993, rfl⟩
abbrev main_v8172 : Ref sig .tc := ⟨.hbm, 8994, rfl⟩
abbrev main_v8173 : Ref sig .tc := ⟨.hbm, 8995, rfl⟩
abbrev main_v8174 : Ref sig .tc := ⟨.hbm, 8996, rfl⟩
abbrev main_v8175 : Ref sig .tc := ⟨.hbm, 8997, rfl⟩
abbrev main_v8176 : Ref sig .tc := ⟨.hbm, 8998, rfl⟩
abbrev main_v8177 : Ref sig .tc := ⟨.hbm, 8999, rfl⟩
abbrev main_v8178 : Ref sig .tc := ⟨.hbm, 9000, rfl⟩
abbrev main_v8179 : Ref sig .tc := ⟨.hbm, 9001, rfl⟩
abbrev main_v8180 : Ref sig .tc := ⟨.hbm, 9002, rfl⟩
abbrev main_cst_816 : Ref sig .tc := ⟨.hbm, 9003, rfl⟩
abbrev main_v8181 : Ref sig .tc := ⟨.hbm, 9004, rfl⟩
abbrev main_c_817 : Ref sig .tc := ⟨.hbm, 9005, rfl⟩
abbrev main_v8182 : Ref sig .tc := ⟨.hbm, 9006, rfl⟩
abbrev main_v8183 : Ref sig .tc := ⟨.hbm, 9007, rfl⟩
abbrev main_v8184 : Ref sig .tc := ⟨.hbm, 9008, rfl⟩
abbrev main_v8185 : Ref sig .tc := ⟨.hbm, 9009, rfl⟩
abbrev main_v8186 : Ref sig .tc := ⟨.hbm, 9010, rfl⟩
abbrev main_v8187 : Ref sig .tc := ⟨.hbm, 9011, rfl⟩
abbrev main_v8188 : Ref sig .tc := ⟨.hbm, 9012, rfl⟩
abbrev main_v8189 : Ref sig .tc := ⟨.hbm, 9013, rfl⟩
abbrev main_v8190 : Ref sig .tc := ⟨.hbm, 9014, rfl⟩
abbrev main_v8191 : Ref sig .tc := ⟨.hbm, 9015, rfl⟩
abbrev main_v8192 : Ref sig .tc := ⟨.hbm, 9016, rfl⟩
abbrev main_v8193 : Ref sig .tc := ⟨.hbm, 9017, rfl⟩
abbrev main_v8194 : Ref sig .tc := ⟨.hbm, 9018, rfl⟩
abbrev main_v8195 : Ref sig .tc := ⟨.hbm, 9019, rfl⟩
abbrev main_v8196 : Ref sig .tc := ⟨.hbm, 9020, rfl⟩
abbrev main_v8197 : Ref sig .tc := ⟨.hbm, 9021, rfl⟩
abbrev main_v8198 : Ref sig .tc := ⟨.hbm, 9022, rfl⟩
abbrev main_v8199 : Ref sig .tc := ⟨.hbm, 9023, rfl⟩
abbrev main_v8200 : Ref sig .tc := ⟨.hbm, 9024, rfl⟩
abbrev main_cst_818 : Ref sig .tc := ⟨.hbm, 9025, rfl⟩
abbrev main_v8201 : Ref sig .tc := ⟨.hbm, 9026, rfl⟩
abbrev main_c_819 : Ref sig .tc := ⟨.hbm, 9027, rfl⟩
abbrev main_v8202 : Ref sig .tc := ⟨.hbm, 9028, rfl⟩
abbrev main_v8203 : Ref sig .tc := ⟨.hbm, 9029, rfl⟩
abbrev main_v8204 : Ref sig .tc := ⟨.hbm, 9030, rfl⟩
abbrev main_v8205 : Ref sig .tc := ⟨.hbm, 9031, rfl⟩
abbrev main_v8206 : Ref sig .tc := ⟨.hbm, 9032, rfl⟩
abbrev main_v8207 : Ref sig .tc := ⟨.hbm, 9033, rfl⟩
abbrev main_v8208 : Ref sig .tc := ⟨.hbm, 9034, rfl⟩
abbrev main_v8209 : Ref sig .tc := ⟨.hbm, 9035, rfl⟩
abbrev main_v8210 : Ref sig .tc := ⟨.hbm, 9036, rfl⟩
abbrev main_v8211 : Ref sig .tc := ⟨.hbm, 9037, rfl⟩
abbrev main_v8212 : Ref sig .tc := ⟨.hbm, 9038, rfl⟩
abbrev main_v8213 : Ref sig .tc := ⟨.hbm, 9039, rfl⟩
abbrev main_v8214 : Ref sig .tc := ⟨.hbm, 9040, rfl⟩
abbrev main_v8215 : Ref sig .tc := ⟨.hbm, 9041, rfl⟩
abbrev main_v8216 : Ref sig .tc := ⟨.hbm, 9042, rfl⟩
abbrev main_v8217 : Ref sig .tc := ⟨.hbm, 9043, rfl⟩
abbrev main_v8218 : Ref sig .tc := ⟨.hbm, 9044, rfl⟩
abbrev main_v8219 : Ref sig .tc := ⟨.hbm, 9045, rfl⟩
abbrev main_v8220 : Ref sig .tc := ⟨.hbm, 9046, rfl⟩
abbrev main_cst_820 : Ref sig .tc := ⟨.hbm, 9047, rfl⟩
abbrev main_v8221 : Ref sig .tc := ⟨.hbm, 9048, rfl⟩
abbrev main_c_821 : Ref sig .tc := ⟨.hbm, 9049, rfl⟩
abbrev main_v8222 : Ref sig .tc := ⟨.hbm, 9050, rfl⟩
abbrev main_v8223 : Ref sig .tc := ⟨.hbm, 9051, rfl⟩
abbrev main_v8224 : Ref sig .tc := ⟨.hbm, 9052, rfl⟩
abbrev main_v8225 : Ref sig .tc := ⟨.hbm, 9053, rfl⟩
abbrev main_v8226 : Ref sig .tc := ⟨.hbm, 9054, rfl⟩
abbrev main_v8227 : Ref sig .tc := ⟨.hbm, 9055, rfl⟩
abbrev main_v8228 : Ref sig .tc := ⟨.hbm, 9056, rfl⟩
abbrev main_v8229 : Ref sig .tc := ⟨.hbm, 9057, rfl⟩
abbrev main_v8230 : Ref sig .tc := ⟨.hbm, 9058, rfl⟩
abbrev main_v8231 : Ref sig .tc := ⟨.hbm, 9059, rfl⟩
abbrev main_v8232 : Ref sig .tc := ⟨.hbm, 9060, rfl⟩
abbrev main_v8233 : Ref sig .tc := ⟨.hbm, 9061, rfl⟩
abbrev main_v8234 : Ref sig .tc := ⟨.hbm, 9062, rfl⟩
abbrev main_v8235 : Ref sig .tc := ⟨.hbm, 9063, rfl⟩
abbrev main_v8236 : Ref sig .tc := ⟨.hbm, 9064, rfl⟩
abbrev main_v8237 : Ref sig .tc := ⟨.hbm, 9065, rfl⟩
abbrev main_v8238 : Ref sig .tc := ⟨.hbm, 9066, rfl⟩
abbrev main_v8239 : Ref sig .tc := ⟨.hbm, 9067, rfl⟩
abbrev main_v8240 : Ref sig .tc := ⟨.hbm, 9068, rfl⟩
abbrev main_cst_822 : Ref sig .tc := ⟨.hbm, 9069, rfl⟩
abbrev main_v8241 : Ref sig .tc := ⟨.hbm, 9070, rfl⟩
abbrev main_c_823 : Ref sig .tc := ⟨.hbm, 9071, rfl⟩
abbrev main_v8242 : Ref sig .tc := ⟨.hbm, 9072, rfl⟩
abbrev main_v8243 : Ref sig .tc := ⟨.hbm, 9073, rfl⟩
abbrev main_v8244 : Ref sig .tc := ⟨.hbm, 9074, rfl⟩
abbrev main_v8245 : Ref sig .tc := ⟨.hbm, 9075, rfl⟩
abbrev main_v8246 : Ref sig .tc := ⟨.hbm, 9076, rfl⟩
abbrev main_v8247 : Ref sig .tc := ⟨.hbm, 9077, rfl⟩
abbrev main_v8248 : Ref sig .tc := ⟨.hbm, 9078, rfl⟩
abbrev main_v8249 : Ref sig .tc := ⟨.hbm, 9079, rfl⟩
abbrev main_v8250 : Ref sig .tc := ⟨.hbm, 9080, rfl⟩
abbrev main_v8251 : Ref sig .tc := ⟨.hbm, 9081, rfl⟩
abbrev main_v8252 : Ref sig .tc := ⟨.hbm, 9082, rfl⟩
abbrev main_v8253 : Ref sig .tc := ⟨.hbm, 9083, rfl⟩
abbrev main_v8254 : Ref sig .tc := ⟨.hbm, 9084, rfl⟩
abbrev main_v8255 : Ref sig .tc := ⟨.hbm, 9085, rfl⟩
abbrev main_v8256 : Ref sig .tc := ⟨.hbm, 9086, rfl⟩
abbrev main_v8257 : Ref sig .tc := ⟨.hbm, 9087, rfl⟩
abbrev main_v8258 : Ref sig .tc := ⟨.hbm, 9088, rfl⟩
abbrev main_v8259 : Ref sig .tc := ⟨.hbm, 9089, rfl⟩
abbrev main_v8260 : Ref sig .tc := ⟨.hbm, 9090, rfl⟩
abbrev main_cst_824 : Ref sig .tc := ⟨.hbm, 9091, rfl⟩
abbrev main_v8261 : Ref sig .tc := ⟨.hbm, 9092, rfl⟩
abbrev main_c_825 : Ref sig .tc := ⟨.hbm, 9093, rfl⟩
abbrev main_v8262 : Ref sig .tc := ⟨.hbm, 9094, rfl⟩
abbrev main_v8263 : Ref sig .tc := ⟨.hbm, 9095, rfl⟩
abbrev main_v8264 : Ref sig .tc := ⟨.hbm, 9096, rfl⟩
abbrev main_v8265 : Ref sig .tc := ⟨.hbm, 9097, rfl⟩
abbrev main_v8266 : Ref sig .tc := ⟨.hbm, 9098, rfl⟩
abbrev main_v8267 : Ref sig .tc := ⟨.hbm, 9099, rfl⟩
abbrev main_v8268 : Ref sig .tc := ⟨.hbm, 9100, rfl⟩
abbrev main_v8269 : Ref sig .tc := ⟨.hbm, 9101, rfl⟩
abbrev main_v8270 : Ref sig .tc := ⟨.hbm, 9102, rfl⟩
abbrev main_v8271 : Ref sig .tc := ⟨.hbm, 9103, rfl⟩
abbrev main_v8272 : Ref sig .tc := ⟨.hbm, 9104, rfl⟩
abbrev main_v8273 : Ref sig .tc := ⟨.hbm, 9105, rfl⟩
abbrev main_v8274 : Ref sig .tc := ⟨.hbm, 9106, rfl⟩
abbrev main_v8275 : Ref sig .tc := ⟨.hbm, 9107, rfl⟩
abbrev main_v8276 : Ref sig .tc := ⟨.hbm, 9108, rfl⟩
abbrev main_v8277 : Ref sig .tc := ⟨.hbm, 9109, rfl⟩
abbrev main_v8278 : Ref sig .tc := ⟨.hbm, 9110, rfl⟩
abbrev main_v8279 : Ref sig .tc := ⟨.hbm, 9111, rfl⟩
abbrev main_v8280 : Ref sig .tc := ⟨.hbm, 9112, rfl⟩
abbrev main_cst_826 : Ref sig .tc := ⟨.hbm, 9113, rfl⟩
abbrev main_v8281 : Ref sig .tc := ⟨.hbm, 9114, rfl⟩
abbrev main_c_827 : Ref sig .tc := ⟨.hbm, 9115, rfl⟩
abbrev main_v8282 : Ref sig .tc := ⟨.hbm, 9116, rfl⟩
abbrev main_v8283 : Ref sig .tc := ⟨.hbm, 9117, rfl⟩
abbrev main_v8284 : Ref sig .tc := ⟨.hbm, 9118, rfl⟩
abbrev main_v8285 : Ref sig .tc := ⟨.hbm, 9119, rfl⟩
abbrev main_v8286 : Ref sig .tc := ⟨.hbm, 9120, rfl⟩
abbrev main_v8287 : Ref sig .tc := ⟨.hbm, 9121, rfl⟩
abbrev main_v8288 : Ref sig .tc := ⟨.hbm, 9122, rfl⟩
abbrev main_v8289 : Ref sig .tc := ⟨.hbm, 9123, rfl⟩
abbrev main_v8290 : Ref sig .tc := ⟨.hbm, 9124, rfl⟩
abbrev main_v8291 : Ref sig .tc := ⟨.hbm, 9125, rfl⟩
abbrev main_v8292 : Ref sig .tc := ⟨.hbm, 9126, rfl⟩
abbrev main_v8293 : Ref sig .tc := ⟨.hbm, 9127, rfl⟩
abbrev main_v8294 : Ref sig .tc := ⟨.hbm, 9128, rfl⟩
abbrev main_v8295 : Ref sig .tc := ⟨.hbm, 9129, rfl⟩
abbrev main_v8296 : Ref sig .tc := ⟨.hbm, 9130, rfl⟩
abbrev main_v8297 : Ref sig .tc := ⟨.hbm, 9131, rfl⟩
abbrev main_v8298 : Ref sig .tc := ⟨.hbm, 9132, rfl⟩
abbrev main_v8299 : Ref sig .tc := ⟨.hbm, 9133, rfl⟩
abbrev main_v8300 : Ref sig .tc := ⟨.hbm, 9134, rfl⟩
abbrev main_cst_828 : Ref sig .tc := ⟨.hbm, 9135, rfl⟩
abbrev main_v8301 : Ref sig .tc := ⟨.hbm, 9136, rfl⟩
abbrev main_c_829 : Ref sig .tc := ⟨.hbm, 9137, rfl⟩
abbrev main_v8302 : Ref sig .tc := ⟨.hbm, 9138, rfl⟩
abbrev main_v8303 : Ref sig .tc := ⟨.hbm, 9139, rfl⟩
abbrev main_v8304 : Ref sig .tc := ⟨.hbm, 9140, rfl⟩
abbrev main_v8305 : Ref sig .tc := ⟨.hbm, 9141, rfl⟩
abbrev main_v8306 : Ref sig .tc := ⟨.hbm, 9142, rfl⟩
abbrev main_v8307 : Ref sig .tc := ⟨.hbm, 9143, rfl⟩
abbrev main_v8308 : Ref sig .tc := ⟨.hbm, 9144, rfl⟩
abbrev main_v8309 : Ref sig .tc := ⟨.hbm, 9145, rfl⟩
abbrev main_v8310 : Ref sig .tc := ⟨.hbm, 9146, rfl⟩
abbrev main_v8311 : Ref sig .tc := ⟨.hbm, 9147, rfl⟩
abbrev main_v8312 : Ref sig .tc := ⟨.hbm, 9148, rfl⟩
abbrev main_v8313 : Ref sig .tc := ⟨.hbm, 9149, rfl⟩
abbrev main_v8314 : Ref sig .tc := ⟨.hbm, 9150, rfl⟩
abbrev main_v8315 : Ref sig .tc := ⟨.hbm, 9151, rfl⟩
abbrev main_v8316 : Ref sig .tc := ⟨.hbm, 9152, rfl⟩
abbrev main_v8317 : Ref sig .tc := ⟨.hbm, 9153, rfl⟩
abbrev main_v8318 : Ref sig .tc := ⟨.hbm, 9154, rfl⟩
abbrev main_v8319 : Ref sig .tc := ⟨.hbm, 9155, rfl⟩
abbrev main_v8320 : Ref sig .tc := ⟨.hbm, 9156, rfl⟩
abbrev main_cst_830 : Ref sig .tc := ⟨.hbm, 9157, rfl⟩
abbrev main_v8321 : Ref sig .tc := ⟨.hbm, 9158, rfl⟩
abbrev main_c_831 : Ref sig .tc := ⟨.hbm, 9159, rfl⟩
abbrev main_v8322 : Ref sig .tc := ⟨.hbm, 9160, rfl⟩
abbrev main_v8323 : Ref sig .tc := ⟨.hbm, 9161, rfl⟩
abbrev main_v8324 : Ref sig .tc := ⟨.hbm, 9162, rfl⟩
abbrev main_v8325 : Ref sig .tc := ⟨.hbm, 9163, rfl⟩
abbrev main_v8326 : Ref sig .tc := ⟨.hbm, 9164, rfl⟩
abbrev main_v8327 : Ref sig .tc := ⟨.hbm, 9165, rfl⟩
abbrev main_v8328 : Ref sig .tc := ⟨.hbm, 9166, rfl⟩
abbrev main_v8329 : Ref sig .tc := ⟨.hbm, 9167, rfl⟩
abbrev main_v8330 : Ref sig .tc := ⟨.hbm, 9168, rfl⟩
abbrev main_v8331 : Ref sig .tc := ⟨.hbm, 9169, rfl⟩
abbrev main_v8332 : Ref sig .tc := ⟨.hbm, 9170, rfl⟩
abbrev main_v8333 : Ref sig .tc := ⟨.hbm, 9171, rfl⟩
abbrev main_v8334 : Ref sig .tc := ⟨.hbm, 9172, rfl⟩
abbrev main_v8335 : Ref sig .tc := ⟨.hbm, 9173, rfl⟩
abbrev main_v8336 : Ref sig .tc := ⟨.hbm, 9174, rfl⟩
abbrev main_v8337 : Ref sig .tc := ⟨.hbm, 9175, rfl⟩
abbrev main_v8338 : Ref sig .tc := ⟨.hbm, 9176, rfl⟩
abbrev main_v8339 : Ref sig .tc := ⟨.hbm, 9177, rfl⟩
abbrev main_v8340 : Ref sig .tc := ⟨.hbm, 9178, rfl⟩
abbrev main_cst_832 : Ref sig .tc := ⟨.hbm, 9179, rfl⟩
abbrev main_v8341 : Ref sig .tc := ⟨.hbm, 9180, rfl⟩
abbrev main_c_833 : Ref sig .tc := ⟨.hbm, 9181, rfl⟩
abbrev main_v8342 : Ref sig .tc := ⟨.hbm, 9182, rfl⟩
abbrev main_v8343 : Ref sig .tc := ⟨.hbm, 9183, rfl⟩
abbrev main_v8344 : Ref sig .tc := ⟨.hbm, 9184, rfl⟩
abbrev main_v8345 : Ref sig .tc := ⟨.hbm, 9185, rfl⟩
abbrev main_v8346 : Ref sig .tc := ⟨.hbm, 9186, rfl⟩
abbrev main_v8347 : Ref sig .tc := ⟨.hbm, 9187, rfl⟩
abbrev main_v8348 : Ref sig .tc := ⟨.hbm, 9188, rfl⟩
abbrev main_v8349 : Ref sig .tc := ⟨.hbm, 9189, rfl⟩
abbrev main_v8350 : Ref sig .tc := ⟨.hbm, 9190, rfl⟩
abbrev main_v8351 : Ref sig .tc := ⟨.hbm, 9191, rfl⟩
abbrev main_v8352 : Ref sig .tc := ⟨.hbm, 9192, rfl⟩
abbrev main_v8353 : Ref sig .tc := ⟨.hbm, 9193, rfl⟩
abbrev main_v8354 : Ref sig .tc := ⟨.hbm, 9194, rfl⟩
abbrev main_v8355 : Ref sig .tc := ⟨.hbm, 9195, rfl⟩
abbrev main_v8356 : Ref sig .tc := ⟨.hbm, 9196, rfl⟩
abbrev main_v8357 : Ref sig .tc := ⟨.hbm, 9197, rfl⟩
abbrev main_v8358 : Ref sig .tc := ⟨.hbm, 9198, rfl⟩
abbrev main_v8359 : Ref sig .tc := ⟨.hbm, 9199, rfl⟩
abbrev main_v8360 : Ref sig .tc := ⟨.hbm, 9200, rfl⟩
abbrev main_cst_834 : Ref sig .tc := ⟨.hbm, 9201, rfl⟩
abbrev main_v8361 : Ref sig .tc := ⟨.hbm, 9202, rfl⟩
abbrev main_c_835 : Ref sig .tc := ⟨.hbm, 9203, rfl⟩
abbrev main_v8362 : Ref sig .tc := ⟨.hbm, 9204, rfl⟩
abbrev main_v8363 : Ref sig .tc := ⟨.hbm, 9205, rfl⟩
abbrev main_v8364 : Ref sig .tc := ⟨.hbm, 9206, rfl⟩
abbrev main_v8365 : Ref sig .tc := ⟨.hbm, 9207, rfl⟩
abbrev main_v8366 : Ref sig .tc := ⟨.hbm, 9208, rfl⟩
abbrev main_v8367 : Ref sig .tc := ⟨.hbm, 9209, rfl⟩
abbrev main_v8368 : Ref sig .tc := ⟨.hbm, 9210, rfl⟩
abbrev main_v8369 : Ref sig .tc := ⟨.hbm, 9211, rfl⟩
abbrev main_v8370 : Ref sig .tc := ⟨.hbm, 9212, rfl⟩
abbrev main_v8371 : Ref sig .tc := ⟨.hbm, 9213, rfl⟩
abbrev main_v8372 : Ref sig .tc := ⟨.hbm, 9214, rfl⟩
abbrev main_v8373 : Ref sig .tc := ⟨.hbm, 9215, rfl⟩
abbrev main_v8374 : Ref sig .tc := ⟨.hbm, 9216, rfl⟩
abbrev main_v8375 : Ref sig .tc := ⟨.hbm, 9217, rfl⟩
abbrev main_v8376 : Ref sig .tc := ⟨.hbm, 9218, rfl⟩
abbrev main_v8377 : Ref sig .tc := ⟨.hbm, 9219, rfl⟩
abbrev main_v8378 : Ref sig .tc := ⟨.hbm, 9220, rfl⟩
abbrev main_v8379 : Ref sig .tc := ⟨.hbm, 9221, rfl⟩
abbrev main_v8380 : Ref sig .tc := ⟨.hbm, 9222, rfl⟩
abbrev main_cst_836 : Ref sig .tc := ⟨.hbm, 9223, rfl⟩
abbrev main_v8381 : Ref sig .tc := ⟨.hbm, 9224, rfl⟩
abbrev main_c_837 : Ref sig .tc := ⟨.hbm, 9225, rfl⟩
abbrev main_v8382 : Ref sig .tc := ⟨.hbm, 9226, rfl⟩
abbrev main_v8383 : Ref sig .tc := ⟨.hbm, 9227, rfl⟩
abbrev main_v8384 : Ref sig .tc := ⟨.hbm, 9228, rfl⟩
abbrev main_v8385 : Ref sig .tc := ⟨.hbm, 9229, rfl⟩
abbrev main_v8386 : Ref sig .tc := ⟨.hbm, 9230, rfl⟩
abbrev main_v8387 : Ref sig .tc := ⟨.hbm, 9231, rfl⟩
abbrev main_v8388 : Ref sig .tc := ⟨.hbm, 9232, rfl⟩
abbrev main_v8389 : Ref sig .tc := ⟨.hbm, 9233, rfl⟩
abbrev main_v8390 : Ref sig .tc := ⟨.hbm, 9234, rfl⟩
abbrev main_v8391 : Ref sig .tc := ⟨.hbm, 9235, rfl⟩
abbrev main_v8392 : Ref sig .tc := ⟨.hbm, 9236, rfl⟩
abbrev main_v8393 : Ref sig .tc := ⟨.hbm, 9237, rfl⟩
abbrev main_v8394 : Ref sig .tc := ⟨.hbm, 9238, rfl⟩
abbrev main_v8395 : Ref sig .tc := ⟨.hbm, 9239, rfl⟩
abbrev main_v8396 : Ref sig .tc := ⟨.hbm, 9240, rfl⟩
abbrev main_v8397 : Ref sig .tc := ⟨.hbm, 9241, rfl⟩
abbrev main_v8398 : Ref sig .tc := ⟨.hbm, 9242, rfl⟩
abbrev main_v8399 : Ref sig .tc := ⟨.hbm, 9243, rfl⟩
abbrev main_v8400 : Ref sig .tc := ⟨.hbm, 9244, rfl⟩
abbrev main_cst_838 : Ref sig .tc := ⟨.hbm, 9245, rfl⟩
abbrev main_v8401 : Ref sig .tc := ⟨.hbm, 9246, rfl⟩
abbrev main_c_839 : Ref sig .tc := ⟨.hbm, 9247, rfl⟩
abbrev main_v8402 : Ref sig .tc := ⟨.hbm, 9248, rfl⟩
abbrev main_v8403 : Ref sig .tc := ⟨.hbm, 9249, rfl⟩
abbrev main_v8404 : Ref sig .tc := ⟨.hbm, 9250, rfl⟩
abbrev main_v8405 : Ref sig .tc := ⟨.hbm, 9251, rfl⟩
abbrev main_v8406 : Ref sig .tc := ⟨.hbm, 9252, rfl⟩
abbrev main_v8407 : Ref sig .tc := ⟨.hbm, 9253, rfl⟩
abbrev main_v8408 : Ref sig .tc := ⟨.hbm, 9254, rfl⟩
abbrev main_v8409 : Ref sig .tc := ⟨.hbm, 9255, rfl⟩
abbrev main_v8410 : Ref sig .tc := ⟨.hbm, 9256, rfl⟩
abbrev main_v8411 : Ref sig .tc := ⟨.hbm, 9257, rfl⟩
abbrev main_v8412 : Ref sig .tc := ⟨.hbm, 9258, rfl⟩
abbrev main_v8413 : Ref sig .tc := ⟨.hbm, 9259, rfl⟩
abbrev main_v8414 : Ref sig .tc := ⟨.hbm, 9260, rfl⟩
abbrev main_v8415 : Ref sig .tc := ⟨.hbm, 9261, rfl⟩
abbrev main_v8416 : Ref sig .tc := ⟨.hbm, 9262, rfl⟩
abbrev main_v8417 : Ref sig .tc := ⟨.hbm, 9263, rfl⟩
abbrev main_v8418 : Ref sig .tc := ⟨.hbm, 9264, rfl⟩
abbrev main_v8419 : Ref sig .tc := ⟨.hbm, 9265, rfl⟩
abbrev main_v8420 : Ref sig .tc := ⟨.hbm, 9266, rfl⟩
abbrev main_cst_840 : Ref sig .tc := ⟨.hbm, 9267, rfl⟩
abbrev main_v8421 : Ref sig .tc := ⟨.hbm, 9268, rfl⟩
abbrev main_c_841 : Ref sig .tc := ⟨.hbm, 9269, rfl⟩
abbrev main_v8422 : Ref sig .tc := ⟨.hbm, 9270, rfl⟩
abbrev main_v8423 : Ref sig .tc := ⟨.hbm, 9271, rfl⟩
abbrev main_v8424 : Ref sig .tc := ⟨.hbm, 9272, rfl⟩
abbrev main_v8425 : Ref sig .tc := ⟨.hbm, 9273, rfl⟩
abbrev main_v8426 : Ref sig .tc := ⟨.hbm, 9274, rfl⟩
abbrev main_v8427 : Ref sig .tc := ⟨.hbm, 9275, rfl⟩
abbrev main_v8428 : Ref sig .tc := ⟨.hbm, 9276, rfl⟩
abbrev main_v8429 : Ref sig .tc := ⟨.hbm, 9277, rfl⟩
abbrev main_v8430 : Ref sig .tc := ⟨.hbm, 9278, rfl⟩
abbrev main_v8431 : Ref sig .tc := ⟨.hbm, 9279, rfl⟩
abbrev main_v8432 : Ref sig .tc := ⟨.hbm, 9280, rfl⟩
abbrev main_v8433 : Ref sig .tc := ⟨.hbm, 9281, rfl⟩
abbrev main_v8434 : Ref sig .tc := ⟨.hbm, 9282, rfl⟩
abbrev main_v8435 : Ref sig .tc := ⟨.hbm, 9283, rfl⟩
abbrev main_v8436 : Ref sig .tc := ⟨.hbm, 9284, rfl⟩
abbrev main_v8437 : Ref sig .tc := ⟨.hbm, 9285, rfl⟩
abbrev main_v8438 : Ref sig .tc := ⟨.hbm, 9286, rfl⟩
abbrev main_v8439 : Ref sig .tc := ⟨.hbm, 9287, rfl⟩
abbrev main_v8440 : Ref sig .tc := ⟨.hbm, 9288, rfl⟩
abbrev main_cst_842 : Ref sig .tc := ⟨.hbm, 9289, rfl⟩
abbrev main_v8441 : Ref sig .tc := ⟨.hbm, 9290, rfl⟩
abbrev main_c_843 : Ref sig .tc := ⟨.hbm, 9291, rfl⟩
abbrev main_v8442 : Ref sig .tc := ⟨.hbm, 9292, rfl⟩
abbrev main_v8443 : Ref sig .tc := ⟨.hbm, 9293, rfl⟩
abbrev main_v8444 : Ref sig .tc := ⟨.hbm, 9294, rfl⟩
abbrev main_v8445 : Ref sig .tc := ⟨.hbm, 9295, rfl⟩
abbrev main_v8446 : Ref sig .tc := ⟨.hbm, 9296, rfl⟩
abbrev main_v8447 : Ref sig .tc := ⟨.hbm, 9297, rfl⟩
abbrev main_v8448 : Ref sig .tc := ⟨.hbm, 9298, rfl⟩
abbrev main_v8449 : Ref sig .tc := ⟨.hbm, 9299, rfl⟩
abbrev main_v8450 : Ref sig .tc := ⟨.hbm, 9300, rfl⟩
abbrev main_v8451 : Ref sig .tc := ⟨.hbm, 9301, rfl⟩
abbrev main_v8452 : Ref sig .tc := ⟨.hbm, 9302, rfl⟩
abbrev main_v8453 : Ref sig .tc := ⟨.hbm, 9303, rfl⟩
abbrev main_v8454 : Ref sig .tc := ⟨.hbm, 9304, rfl⟩
abbrev main_v8455 : Ref sig .tc := ⟨.hbm, 9305, rfl⟩
abbrev main_v8456 : Ref sig .tc := ⟨.hbm, 9306, rfl⟩
abbrev main_v8457 : Ref sig .tc := ⟨.hbm, 9307, rfl⟩
abbrev main_v8458 : Ref sig .tc := ⟨.hbm, 9308, rfl⟩
abbrev main_v8459 : Ref sig .tc := ⟨.hbm, 9309, rfl⟩
abbrev main_v8460 : Ref sig .tc := ⟨.hbm, 9310, rfl⟩
abbrev main_cst_844 : Ref sig .tc := ⟨.hbm, 9311, rfl⟩
abbrev main_v8461 : Ref sig .tc := ⟨.hbm, 9312, rfl⟩
abbrev main_c_845 : Ref sig .tc := ⟨.hbm, 9313, rfl⟩
abbrev main_v8462 : Ref sig .tc := ⟨.hbm, 9314, rfl⟩
abbrev main_v8463 : Ref sig .tc := ⟨.hbm, 9315, rfl⟩
abbrev main_v8464 : Ref sig .tc := ⟨.hbm, 9316, rfl⟩
abbrev main_v8465 : Ref sig .tc := ⟨.hbm, 9317, rfl⟩
abbrev main_v8466 : Ref sig .tc := ⟨.hbm, 9318, rfl⟩
abbrev main_v8467 : Ref sig .tc := ⟨.hbm, 9319, rfl⟩
abbrev main_v8468 : Ref sig .tc := ⟨.hbm, 9320, rfl⟩
abbrev main_v8469 : Ref sig .tc := ⟨.hbm, 9321, rfl⟩
abbrev main_v8470 : Ref sig .tc := ⟨.hbm, 9322, rfl⟩
abbrev main_v8471 : Ref sig .tc := ⟨.hbm, 9323, rfl⟩
abbrev main_v8472 : Ref sig .tc := ⟨.hbm, 9324, rfl⟩
abbrev main_v8473 : Ref sig .tc := ⟨.hbm, 9325, rfl⟩
abbrev main_v8474 : Ref sig .tc := ⟨.hbm, 9326, rfl⟩
abbrev main_v8475 : Ref sig .tc := ⟨.hbm, 9327, rfl⟩
abbrev main_v8476 : Ref sig .tc := ⟨.hbm, 9328, rfl⟩
abbrev main_v8477 : Ref sig .tc := ⟨.hbm, 9329, rfl⟩
abbrev main_v8478 : Ref sig .tc := ⟨.hbm, 9330, rfl⟩
abbrev main_v8479 : Ref sig .tc := ⟨.hbm, 9331, rfl⟩
abbrev main_v8480 : Ref sig .tc := ⟨.hbm, 9332, rfl⟩
abbrev main_cst_846 : Ref sig .tc := ⟨.hbm, 9333, rfl⟩
abbrev main_v8481 : Ref sig .tc := ⟨.hbm, 9334, rfl⟩
abbrev main_c_847 : Ref sig .tc := ⟨.hbm, 9335, rfl⟩
abbrev main_v8482 : Ref sig .tc := ⟨.hbm, 9336, rfl⟩
abbrev main_v8483 : Ref sig .tc := ⟨.hbm, 9337, rfl⟩
abbrev main_v8484 : Ref sig .tc := ⟨.hbm, 9338, rfl⟩
abbrev main_v8485 : Ref sig .tc := ⟨.hbm, 9339, rfl⟩
abbrev main_v8486 : Ref sig .tc := ⟨.hbm, 9340, rfl⟩
abbrev main_v8487 : Ref sig .tc := ⟨.hbm, 9341, rfl⟩
abbrev main_v8488 : Ref sig .tc := ⟨.hbm, 9342, rfl⟩
abbrev main_v8489 : Ref sig .tc := ⟨.hbm, 9343, rfl⟩
abbrev main_v8490 : Ref sig .tc := ⟨.hbm, 9344, rfl⟩
abbrev main_v8491 : Ref sig .tc := ⟨.hbm, 9345, rfl⟩
abbrev main_v8492 : Ref sig .tc := ⟨.hbm, 9346, rfl⟩
abbrev main_v8493 : Ref sig .tc := ⟨.hbm, 9347, rfl⟩
abbrev main_v8494 : Ref sig .tc := ⟨.hbm, 9348, rfl⟩
abbrev main_v8495 : Ref sig .tc := ⟨.hbm, 9349, rfl⟩
abbrev main_v8496 : Ref sig .tc := ⟨.hbm, 9350, rfl⟩
abbrev main_v8497 : Ref sig .tc := ⟨.hbm, 9351, rfl⟩
abbrev main_v8498 : Ref sig .tc := ⟨.hbm, 9352, rfl⟩
abbrev main_v8499 : Ref sig .tc := ⟨.hbm, 9353, rfl⟩
abbrev main_v8500 : Ref sig .tc := ⟨.hbm, 9354, rfl⟩
abbrev main_cst_848 : Ref sig .tc := ⟨.hbm, 9355, rfl⟩
abbrev main_v8501 : Ref sig .tc := ⟨.hbm, 9356, rfl⟩
abbrev main_c_849 : Ref sig .tc := ⟨.hbm, 9357, rfl⟩
abbrev main_v8502 : Ref sig .tc := ⟨.hbm, 9358, rfl⟩
abbrev main_v8503 : Ref sig .tc := ⟨.hbm, 9359, rfl⟩
abbrev main_v8504 : Ref sig .tc := ⟨.hbm, 9360, rfl⟩
abbrev main_v8505 : Ref sig .tc := ⟨.hbm, 9361, rfl⟩
abbrev main_v8506 : Ref sig .tc := ⟨.hbm, 9362, rfl⟩
abbrev main_v8507 : Ref sig .tc := ⟨.hbm, 9363, rfl⟩
abbrev main_v8508 : Ref sig .tc := ⟨.hbm, 9364, rfl⟩
abbrev main_v8509 : Ref sig .tc := ⟨.hbm, 9365, rfl⟩
abbrev main_v8510 : Ref sig .tc := ⟨.hbm, 9366, rfl⟩
abbrev main_v8511 : Ref sig .tc := ⟨.hbm, 9367, rfl⟩
abbrev main_v8512 : Ref sig .tc := ⟨.hbm, 9368, rfl⟩
abbrev main_v8513 : Ref sig .tc := ⟨.hbm, 9369, rfl⟩
abbrev main_v8514 : Ref sig .tc := ⟨.hbm, 9370, rfl⟩
abbrev main_v8515 : Ref sig .tc := ⟨.hbm, 9371, rfl⟩
abbrev main_v8516 : Ref sig .tc := ⟨.hbm, 9372, rfl⟩
abbrev main_v8517 : Ref sig .tc := ⟨.hbm, 9373, rfl⟩
abbrev main_v8518 : Ref sig .tc := ⟨.hbm, 9374, rfl⟩
abbrev main_v8519 : Ref sig .tc := ⟨.hbm, 9375, rfl⟩
abbrev main_v8520 : Ref sig .tc := ⟨.hbm, 9376, rfl⟩
abbrev main_cst_850 : Ref sig .tc := ⟨.hbm, 9377, rfl⟩
abbrev main_v8521 : Ref sig .tc := ⟨.hbm, 9378, rfl⟩
abbrev main_c_851 : Ref sig .tc := ⟨.hbm, 9379, rfl⟩
abbrev main_v8522 : Ref sig .tc := ⟨.hbm, 9380, rfl⟩
abbrev main_v8523 : Ref sig .tc := ⟨.hbm, 9381, rfl⟩
abbrev main_v8524 : Ref sig .tc := ⟨.hbm, 9382, rfl⟩
abbrev main_v8525 : Ref sig .tc := ⟨.hbm, 9383, rfl⟩
abbrev main_v8526 : Ref sig .tc := ⟨.hbm, 9384, rfl⟩
abbrev main_v8527 : Ref sig .tc := ⟨.hbm, 9385, rfl⟩
abbrev main_v8528 : Ref sig .tc := ⟨.hbm, 9386, rfl⟩
abbrev main_v8529 : Ref sig .tc := ⟨.hbm, 9387, rfl⟩
abbrev main_v8530 : Ref sig .tc := ⟨.hbm, 9388, rfl⟩
abbrev main_v8531 : Ref sig .tc := ⟨.hbm, 9389, rfl⟩
abbrev main_v8532 : Ref sig .tc := ⟨.hbm, 9390, rfl⟩
abbrev main_v8533 : Ref sig .tc := ⟨.hbm, 9391, rfl⟩
abbrev main_v8534 : Ref sig .tc := ⟨.hbm, 9392, rfl⟩
abbrev main_v8535 : Ref sig .tc := ⟨.hbm, 9393, rfl⟩
abbrev main_v8536 : Ref sig .tc := ⟨.hbm, 9394, rfl⟩
abbrev main_v8537 : Ref sig .tc := ⟨.hbm, 9395, rfl⟩
abbrev main_v8538 : Ref sig .tc := ⟨.hbm, 9396, rfl⟩
abbrev main_v8539 : Ref sig .tc := ⟨.hbm, 9397, rfl⟩
abbrev main_v8540 : Ref sig .tc := ⟨.hbm, 9398, rfl⟩
abbrev main_cst_852 : Ref sig .tc := ⟨.hbm, 9399, rfl⟩
abbrev main_v8541 : Ref sig .tc := ⟨.hbm, 9400, rfl⟩
abbrev main_c_853 : Ref sig .tc := ⟨.hbm, 9401, rfl⟩
abbrev main_v8542 : Ref sig .tc := ⟨.hbm, 9402, rfl⟩
abbrev main_v8543 : Ref sig .tc := ⟨.hbm, 9403, rfl⟩
abbrev main_v8544 : Ref sig .tc := ⟨.hbm, 9404, rfl⟩
abbrev main_v8545 : Ref sig .tc := ⟨.hbm, 9405, rfl⟩
abbrev main_v8546 : Ref sig .tc := ⟨.hbm, 9406, rfl⟩
abbrev main_v8547 : Ref sig .tc := ⟨.hbm, 9407, rfl⟩
abbrev main_v8548 : Ref sig .tc := ⟨.hbm, 9408, rfl⟩
abbrev main_v8549 : Ref sig .tc := ⟨.hbm, 9409, rfl⟩
abbrev main_v8550 : Ref sig .tc := ⟨.hbm, 9410, rfl⟩
abbrev main_v8551 : Ref sig .tc := ⟨.hbm, 9411, rfl⟩
abbrev main_v8552 : Ref sig .tc := ⟨.hbm, 9412, rfl⟩
abbrev main_v8553 : Ref sig .tc := ⟨.hbm, 9413, rfl⟩
abbrev main_v8554 : Ref sig .tc := ⟨.hbm, 9414, rfl⟩
abbrev main_v8555 : Ref sig .tc := ⟨.hbm, 9415, rfl⟩
abbrev main_v8556 : Ref sig .tc := ⟨.hbm, 9416, rfl⟩
abbrev main_v8557 : Ref sig .tc := ⟨.hbm, 9417, rfl⟩
abbrev main_v8558 : Ref sig .tc := ⟨.hbm, 9418, rfl⟩
abbrev main_v8559 : Ref sig .tc := ⟨.hbm, 9419, rfl⟩
abbrev main_v8560 : Ref sig .tc := ⟨.hbm, 9420, rfl⟩
abbrev main_cst_854 : Ref sig .tc := ⟨.hbm, 9421, rfl⟩
abbrev main_v8561 : Ref sig .tc := ⟨.hbm, 9422, rfl⟩
abbrev main_c_855 : Ref sig .tc := ⟨.hbm, 9423, rfl⟩
abbrev main_v8562 : Ref sig .tc := ⟨.hbm, 9424, rfl⟩
abbrev main_v8563 : Ref sig .tc := ⟨.hbm, 9425, rfl⟩
abbrev main_v8564 : Ref sig .tc := ⟨.hbm, 9426, rfl⟩
abbrev main_v8565 : Ref sig .tc := ⟨.hbm, 9427, rfl⟩
abbrev main_v8566 : Ref sig .tc := ⟨.hbm, 9428, rfl⟩
abbrev main_v8567 : Ref sig .tc := ⟨.hbm, 9429, rfl⟩
abbrev main_v8568 : Ref sig .tc := ⟨.hbm, 9430, rfl⟩
abbrev main_v8569 : Ref sig .tc := ⟨.hbm, 9431, rfl⟩
abbrev main_v8570 : Ref sig .tc := ⟨.hbm, 9432, rfl⟩
abbrev main_v8571 : Ref sig .tc := ⟨.hbm, 9433, rfl⟩
abbrev main_v8572 : Ref sig .tc := ⟨.hbm, 9434, rfl⟩
abbrev main_v8573 : Ref sig .tc := ⟨.hbm, 9435, rfl⟩
abbrev main_v8574 : Ref sig .tc := ⟨.hbm, 9436, rfl⟩
abbrev main_v8575 : Ref sig .tc := ⟨.hbm, 9437, rfl⟩
abbrev main_v8576 : Ref sig .tc := ⟨.hbm, 9438, rfl⟩
abbrev main_v8577 : Ref sig .tc := ⟨.hbm, 9439, rfl⟩
abbrev main_v8578 : Ref sig .tc := ⟨.hbm, 9440, rfl⟩
abbrev main_v8579 : Ref sig .tc := ⟨.hbm, 9441, rfl⟩
abbrev main_v8580 : Ref sig .tc := ⟨.hbm, 9442, rfl⟩
abbrev main_cst_856 : Ref sig .tc := ⟨.hbm, 9443, rfl⟩
abbrev main_v8581 : Ref sig .tc := ⟨.hbm, 9444, rfl⟩
abbrev main_c_857 : Ref sig .tc := ⟨.hbm, 9445, rfl⟩
abbrev main_v8582 : Ref sig .tc := ⟨.hbm, 9446, rfl⟩
abbrev main_v8583 : Ref sig .tc := ⟨.hbm, 9447, rfl⟩
abbrev main_v8584 : Ref sig .tc := ⟨.hbm, 9448, rfl⟩
abbrev main_v8585 : Ref sig .tc := ⟨.hbm, 9449, rfl⟩
abbrev main_v8586 : Ref sig .tc := ⟨.hbm, 9450, rfl⟩
abbrev main_v8587 : Ref sig .tc := ⟨.hbm, 9451, rfl⟩
abbrev main_v8588 : Ref sig .tc := ⟨.hbm, 9452, rfl⟩
abbrev main_v8589 : Ref sig .tc := ⟨.hbm, 9453, rfl⟩
abbrev main_v8590 : Ref sig .tc := ⟨.hbm, 9454, rfl⟩
abbrev main_v8591 : Ref sig .tc := ⟨.hbm, 9455, rfl⟩
abbrev main_v8592 : Ref sig .tc := ⟨.hbm, 9456, rfl⟩
abbrev main_v8593 : Ref sig .tc := ⟨.hbm, 9457, rfl⟩
abbrev main_v8594 : Ref sig .tc := ⟨.hbm, 9458, rfl⟩
abbrev main_v8595 : Ref sig .tc := ⟨.hbm, 9459, rfl⟩
abbrev main_v8596 : Ref sig .tc := ⟨.hbm, 9460, rfl⟩
abbrev main_v8597 : Ref sig .tc := ⟨.hbm, 9461, rfl⟩
abbrev main_v8598 : Ref sig .tc := ⟨.hbm, 9462, rfl⟩
abbrev main_v8599 : Ref sig .tc := ⟨.hbm, 9463, rfl⟩
abbrev main_v8600 : Ref sig .tc := ⟨.hbm, 9464, rfl⟩
abbrev main_cst_858 : Ref sig .tc := ⟨.hbm, 9465, rfl⟩
abbrev main_v8601 : Ref sig .tc := ⟨.hbm, 9466, rfl⟩
abbrev main_c_859 : Ref sig .tc := ⟨.hbm, 9467, rfl⟩
abbrev main_v8602 : Ref sig .tc := ⟨.hbm, 9468, rfl⟩
abbrev main_v8603 : Ref sig .tc := ⟨.hbm, 9469, rfl⟩
abbrev main_v8604 : Ref sig .tc := ⟨.hbm, 9470, rfl⟩
abbrev main_v8605 : Ref sig .tc := ⟨.hbm, 9471, rfl⟩
abbrev main_v8606 : Ref sig .tc := ⟨.hbm, 9472, rfl⟩
abbrev main_v8607 : Ref sig .tc := ⟨.hbm, 9473, rfl⟩
abbrev main_v8608 : Ref sig .tc := ⟨.hbm, 9474, rfl⟩
abbrev main_v8609 : Ref sig .tc := ⟨.hbm, 9475, rfl⟩
abbrev main_v8610 : Ref sig .tc := ⟨.hbm, 9476, rfl⟩
abbrev main_v8611 : Ref sig .tc := ⟨.hbm, 9477, rfl⟩
abbrev main_v8612 : Ref sig .tc := ⟨.hbm, 9478, rfl⟩
abbrev main_v8613 : Ref sig .tc := ⟨.hbm, 9479, rfl⟩
abbrev main_v8614 : Ref sig .tc := ⟨.hbm, 9480, rfl⟩
abbrev main_v8615 : Ref sig .tc := ⟨.hbm, 9481, rfl⟩
abbrev main_v8616 : Ref sig .tc := ⟨.hbm, 9482, rfl⟩
abbrev main_v8617 : Ref sig .tc := ⟨.hbm, 9483, rfl⟩
abbrev main_v8618 : Ref sig .tc := ⟨.hbm, 9484, rfl⟩
abbrev main_v8619 : Ref sig .tc := ⟨.hbm, 9485, rfl⟩
abbrev main_v8620 : Ref sig .tc := ⟨.hbm, 9486, rfl⟩
abbrev main_cst_860 : Ref sig .tc := ⟨.hbm, 9487, rfl⟩
abbrev main_v8621 : Ref sig .tc := ⟨.hbm, 9488, rfl⟩
abbrev main_c_861 : Ref sig .tc := ⟨.hbm, 9489, rfl⟩
abbrev main_v8622 : Ref sig .tc := ⟨.hbm, 9490, rfl⟩
abbrev main_v8623 : Ref sig .tc := ⟨.hbm, 9491, rfl⟩
abbrev main_v8624 : Ref sig .tc := ⟨.hbm, 9492, rfl⟩
abbrev main_v8625 : Ref sig .tc := ⟨.hbm, 9493, rfl⟩
abbrev main_v8626 : Ref sig .tc := ⟨.hbm, 9494, rfl⟩
abbrev main_v8627 : Ref sig .tc := ⟨.hbm, 9495, rfl⟩
abbrev main_v8628 : Ref sig .tc := ⟨.hbm, 9496, rfl⟩
abbrev main_v8629 : Ref sig .tc := ⟨.hbm, 9497, rfl⟩
abbrev main_v8630 : Ref sig .tc := ⟨.hbm, 9498, rfl⟩
abbrev main_v8631 : Ref sig .tc := ⟨.hbm, 9499, rfl⟩
abbrev main_v8632 : Ref sig .tc := ⟨.hbm, 9500, rfl⟩
abbrev main_v8633 : Ref sig .tc := ⟨.hbm, 9501, rfl⟩
abbrev main_v8634 : Ref sig .tc := ⟨.hbm, 9502, rfl⟩
abbrev main_v8635 : Ref sig .tc := ⟨.hbm, 9503, rfl⟩
abbrev main_v8636 : Ref sig .tc := ⟨.hbm, 9504, rfl⟩
abbrev main_v8637 : Ref sig .tc := ⟨.hbm, 9505, rfl⟩
abbrev main_v8638 : Ref sig .tc := ⟨.hbm, 9506, rfl⟩
abbrev main_v8639 : Ref sig .tc := ⟨.hbm, 9507, rfl⟩
abbrev main_v8640 : Ref sig .tc := ⟨.hbm, 9508, rfl⟩
abbrev main_cst_862 : Ref sig .tc := ⟨.hbm, 9509, rfl⟩
abbrev main_v8641 : Ref sig .tc := ⟨.hbm, 9510, rfl⟩
abbrev main_c_863 : Ref sig .tc := ⟨.hbm, 9511, rfl⟩
abbrev main_v8642 : Ref sig .tc := ⟨.hbm, 9512, rfl⟩
abbrev main_v8643 : Ref sig .tc := ⟨.hbm, 9513, rfl⟩
abbrev main_v8644 : Ref sig .tc := ⟨.hbm, 9514, rfl⟩
abbrev main_v8645 : Ref sig .tc := ⟨.hbm, 9515, rfl⟩
abbrev main_v8646 : Ref sig .tc := ⟨.hbm, 9516, rfl⟩
abbrev main_v8647 : Ref sig .tc := ⟨.hbm, 9517, rfl⟩
abbrev main_v8648 : Ref sig .tc := ⟨.hbm, 9518, rfl⟩
abbrev main_v8649 : Ref sig .tc := ⟨.hbm, 9519, rfl⟩
abbrev main_v8650 : Ref sig .tc := ⟨.hbm, 9520, rfl⟩
abbrev main_v8651 : Ref sig .tc := ⟨.hbm, 9521, rfl⟩
abbrev main_v8652 : Ref sig .tc := ⟨.hbm, 9522, rfl⟩
abbrev main_v8653 : Ref sig .tc := ⟨.hbm, 9523, rfl⟩
abbrev main_v8654 : Ref sig .tc := ⟨.hbm, 9524, rfl⟩
abbrev main_v8655 : Ref sig .tc := ⟨.hbm, 9525, rfl⟩
abbrev main_v8656 : Ref sig .tc := ⟨.hbm, 9526, rfl⟩
abbrev main_v8657 : Ref sig .tc := ⟨.hbm, 9527, rfl⟩
abbrev main_v8658 : Ref sig .tc := ⟨.hbm, 9528, rfl⟩
abbrev main_v8659 : Ref sig .tc := ⟨.hbm, 9529, rfl⟩
abbrev main_v8660 : Ref sig .tc := ⟨.hbm, 9530, rfl⟩
abbrev main_cst_864 : Ref sig .tc := ⟨.hbm, 9531, rfl⟩
abbrev main_v8661 : Ref sig .tc := ⟨.hbm, 9532, rfl⟩
abbrev main_c_865 : Ref sig .tc := ⟨.hbm, 9533, rfl⟩
abbrev main_v8662 : Ref sig .tc := ⟨.hbm, 9534, rfl⟩
abbrev main_v8663 : Ref sig .tc := ⟨.hbm, 9535, rfl⟩
abbrev main_v8664 : Ref sig .tc := ⟨.hbm, 9536, rfl⟩
abbrev main_v8665 : Ref sig .tc := ⟨.hbm, 9537, rfl⟩
abbrev main_v8666 : Ref sig .tc := ⟨.hbm, 9538, rfl⟩
abbrev main_v8667 : Ref sig .tc := ⟨.hbm, 9539, rfl⟩
abbrev main_v8668 : Ref sig .tc := ⟨.hbm, 9540, rfl⟩
abbrev main_v8669 : Ref sig .tc := ⟨.hbm, 9541, rfl⟩
abbrev main_v8670 : Ref sig .tc := ⟨.hbm, 9542, rfl⟩
abbrev main_v8671 : Ref sig .tc := ⟨.hbm, 9543, rfl⟩
abbrev main_v8672 : Ref sig .tc := ⟨.hbm, 9544, rfl⟩
abbrev main_v8673 : Ref sig .tc := ⟨.hbm, 9545, rfl⟩
abbrev main_v8674 : Ref sig .tc := ⟨.hbm, 9546, rfl⟩
abbrev main_v8675 : Ref sig .tc := ⟨.hbm, 9547, rfl⟩
abbrev main_v8676 : Ref sig .tc := ⟨.hbm, 9548, rfl⟩
abbrev main_v8677 : Ref sig .tc := ⟨.hbm, 9549, rfl⟩
abbrev main_v8678 : Ref sig .tc := ⟨.hbm, 9550, rfl⟩
abbrev main_v8679 : Ref sig .tc := ⟨.hbm, 9551, rfl⟩
abbrev main_v8680 : Ref sig .tc := ⟨.hbm, 9552, rfl⟩
abbrev main_cst_866 : Ref sig .tc := ⟨.hbm, 9553, rfl⟩
abbrev main_v8681 : Ref sig .tc := ⟨.hbm, 9554, rfl⟩
abbrev main_c_867 : Ref sig .tc := ⟨.hbm, 9555, rfl⟩
abbrev main_v8682 : Ref sig .tc := ⟨.hbm, 9556, rfl⟩
abbrev main_v8683 : Ref sig .tc := ⟨.hbm, 9557, rfl⟩
abbrev main_v8684 : Ref sig .tc := ⟨.hbm, 9558, rfl⟩
abbrev main_v8685 : Ref sig .tc := ⟨.hbm, 9559, rfl⟩
abbrev main_v8686 : Ref sig .tc := ⟨.hbm, 9560, rfl⟩
abbrev main_v8687 : Ref sig .tc := ⟨.hbm, 9561, rfl⟩
abbrev main_v8688 : Ref sig .tc := ⟨.hbm, 9562, rfl⟩
abbrev main_v8689 : Ref sig .tc := ⟨.hbm, 9563, rfl⟩
abbrev main_v8690 : Ref sig .tc := ⟨.hbm, 9564, rfl⟩
abbrev main_v8691 : Ref sig .tc := ⟨.hbm, 9565, rfl⟩
abbrev main_v8692 : Ref sig .tc := ⟨.hbm, 9566, rfl⟩
abbrev main_v8693 : Ref sig .tc := ⟨.hbm, 9567, rfl⟩
abbrev main_v8694 : Ref sig .tc := ⟨.hbm, 9568, rfl⟩
abbrev main_v8695 : Ref sig .tc := ⟨.hbm, 9569, rfl⟩
abbrev main_v8696 : Ref sig .tc := ⟨.hbm, 9570, rfl⟩
abbrev main_v8697 : Ref sig .tc := ⟨.hbm, 9571, rfl⟩
abbrev main_v8698 : Ref sig .tc := ⟨.hbm, 9572, rfl⟩
abbrev main_v8699 : Ref sig .tc := ⟨.hbm, 9573, rfl⟩
abbrev main_v8700 : Ref sig .tc := ⟨.hbm, 9574, rfl⟩
abbrev main_cst_868 : Ref sig .tc := ⟨.hbm, 9575, rfl⟩
abbrev main_v8701 : Ref sig .tc := ⟨.hbm, 9576, rfl⟩
abbrev main_c_869 : Ref sig .tc := ⟨.hbm, 9577, rfl⟩
abbrev main_v8702 : Ref sig .tc := ⟨.hbm, 9578, rfl⟩
abbrev main_v8703 : Ref sig .tc := ⟨.hbm, 9579, rfl⟩
abbrev main_v8704 : Ref sig .tc := ⟨.hbm, 9580, rfl⟩
abbrev main_v8705 : Ref sig .tc := ⟨.hbm, 9581, rfl⟩
abbrev main_v8706 : Ref sig .tc := ⟨.hbm, 9582, rfl⟩
abbrev main_v8707 : Ref sig .tc := ⟨.hbm, 9583, rfl⟩
abbrev main_v8708 : Ref sig .tc := ⟨.hbm, 9584, rfl⟩
abbrev main_v8709 : Ref sig .tc := ⟨.hbm, 9585, rfl⟩
abbrev main_v8710 : Ref sig .tc := ⟨.hbm, 9586, rfl⟩
abbrev main_v8711 : Ref sig .tc := ⟨.hbm, 9587, rfl⟩
abbrev main_v8712 : Ref sig .tc := ⟨.hbm, 9588, rfl⟩
abbrev main_v8713 : Ref sig .tc := ⟨.hbm, 9589, rfl⟩
abbrev main_v8714 : Ref sig .tc := ⟨.hbm, 9590, rfl⟩
abbrev main_v8715 : Ref sig .tc := ⟨.hbm, 9591, rfl⟩
abbrev main_v8716 : Ref sig .tc := ⟨.hbm, 9592, rfl⟩
abbrev main_v8717 : Ref sig .tc := ⟨.hbm, 9593, rfl⟩
abbrev main_v8718 : Ref sig .tc := ⟨.hbm, 9594, rfl⟩
abbrev main_v8719 : Ref sig .tc := ⟨.hbm, 9595, rfl⟩
abbrev main_v8720 : Ref sig .tc := ⟨.hbm, 9596, rfl⟩
abbrev main_cst_870 : Ref sig .tc := ⟨.hbm, 9597, rfl⟩
abbrev main_v8721 : Ref sig .tc := ⟨.hbm, 9598, rfl⟩
abbrev main_c_871 : Ref sig .tc := ⟨.hbm, 9599, rfl⟩
abbrev main_v8722 : Ref sig .tc := ⟨.hbm, 9600, rfl⟩
abbrev main_v8723 : Ref sig .tc := ⟨.hbm, 9601, rfl⟩
abbrev main_v8724 : Ref sig .tc := ⟨.hbm, 9602, rfl⟩
abbrev main_v8725 : Ref sig .tc := ⟨.hbm, 9603, rfl⟩
abbrev main_v8726 : Ref sig .tc := ⟨.hbm, 9604, rfl⟩
abbrev main_v8727 : Ref sig .tc := ⟨.hbm, 9605, rfl⟩
abbrev main_v8728 : Ref sig .tc := ⟨.hbm, 9606, rfl⟩
abbrev main_v8729 : Ref sig .tc := ⟨.hbm, 9607, rfl⟩
abbrev main_v8730 : Ref sig .tc := ⟨.hbm, 9608, rfl⟩
abbrev main_v8731 : Ref sig .tc := ⟨.hbm, 9609, rfl⟩
abbrev main_v8732 : Ref sig .tc := ⟨.hbm, 9610, rfl⟩
abbrev main_v8733 : Ref sig .tc := ⟨.hbm, 9611, rfl⟩
abbrev main_v8734 : Ref sig .tc := ⟨.hbm, 9612, rfl⟩
abbrev main_v8735 : Ref sig .tc := ⟨.hbm, 9613, rfl⟩
abbrev main_v8736 : Ref sig .tc := ⟨.hbm, 9614, rfl⟩
abbrev main_v8737 : Ref sig .tc := ⟨.hbm, 9615, rfl⟩
abbrev main_v8738 : Ref sig .tc := ⟨.hbm, 9616, rfl⟩
abbrev main_v8739 : Ref sig .tc := ⟨.hbm, 9617, rfl⟩
abbrev main_v8740 : Ref sig .tc := ⟨.hbm, 9618, rfl⟩
abbrev main_cst_872 : Ref sig .tc := ⟨.hbm, 9619, rfl⟩
abbrev main_v8741 : Ref sig .tc := ⟨.hbm, 9620, rfl⟩
abbrev main_c_873 : Ref sig .tc := ⟨.hbm, 9621, rfl⟩
abbrev main_v8742 : Ref sig .tc := ⟨.hbm, 9622, rfl⟩
abbrev main_v8743 : Ref sig .tc := ⟨.hbm, 9623, rfl⟩
abbrev main_v8744 : Ref sig .tc := ⟨.hbm, 9624, rfl⟩
abbrev main_v8745 : Ref sig .tc := ⟨.hbm, 9625, rfl⟩
abbrev main_v8746 : Ref sig .tc := ⟨.hbm, 9626, rfl⟩
abbrev main_v8747 : Ref sig .tc := ⟨.hbm, 9627, rfl⟩
abbrev main_v8748 : Ref sig .tc := ⟨.hbm, 9628, rfl⟩
abbrev main_v8749 : Ref sig .tc := ⟨.hbm, 9629, rfl⟩
abbrev main_v8750 : Ref sig .tc := ⟨.hbm, 9630, rfl⟩
abbrev main_v8751 : Ref sig .tc := ⟨.hbm, 9631, rfl⟩
abbrev main_v8752 : Ref sig .tc := ⟨.hbm, 9632, rfl⟩
abbrev main_v8753 : Ref sig .tc := ⟨.hbm, 9633, rfl⟩
abbrev main_v8754 : Ref sig .tc := ⟨.hbm, 9634, rfl⟩
abbrev main_v8755 : Ref sig .tc := ⟨.hbm, 9635, rfl⟩
abbrev main_v8756 : Ref sig .tc := ⟨.hbm, 9636, rfl⟩
abbrev main_v8757 : Ref sig .tc := ⟨.hbm, 9637, rfl⟩
abbrev main_v8758 : Ref sig .tc := ⟨.hbm, 9638, rfl⟩
abbrev main_v8759 : Ref sig .tc := ⟨.hbm, 9639, rfl⟩
abbrev main_v8760 : Ref sig .tc := ⟨.hbm, 9640, rfl⟩
abbrev main_cst_874 : Ref sig .tc := ⟨.hbm, 9641, rfl⟩
abbrev main_v8761 : Ref sig .tc := ⟨.hbm, 9642, rfl⟩
abbrev main_c_875 : Ref sig .tc := ⟨.hbm, 9643, rfl⟩
abbrev main_v8762 : Ref sig .tc := ⟨.hbm, 9644, rfl⟩
abbrev main_v8763 : Ref sig .tc := ⟨.hbm, 9645, rfl⟩
abbrev main_v8764 : Ref sig .tc := ⟨.hbm, 9646, rfl⟩
abbrev main_v8765 : Ref sig .tc := ⟨.hbm, 9647, rfl⟩
abbrev main_v8766 : Ref sig .tc := ⟨.hbm, 9648, rfl⟩
abbrev main_v8767 : Ref sig .tc := ⟨.hbm, 9649, rfl⟩
abbrev main_v8768 : Ref sig .tc := ⟨.hbm, 9650, rfl⟩
abbrev main_v8769 : Ref sig .tc := ⟨.hbm, 9651, rfl⟩
abbrev main_v8770 : Ref sig .tc := ⟨.hbm, 9652, rfl⟩
abbrev main_v8771 : Ref sig .tc := ⟨.hbm, 9653, rfl⟩
abbrev main_v8772 : Ref sig .tc := ⟨.hbm, 9654, rfl⟩
abbrev main_v8773 : Ref sig .tc := ⟨.hbm, 9655, rfl⟩
abbrev main_v8774 : Ref sig .tc := ⟨.hbm, 9656, rfl⟩
abbrev main_v8775 : Ref sig .tc := ⟨.hbm, 9657, rfl⟩
abbrev main_v8776 : Ref sig .tc := ⟨.hbm, 9658, rfl⟩
abbrev main_v8777 : Ref sig .tc := ⟨.hbm, 9659, rfl⟩
abbrev main_v8778 : Ref sig .tc := ⟨.hbm, 9660, rfl⟩
abbrev main_v8779 : Ref sig .tc := ⟨.hbm, 9661, rfl⟩
abbrev main_v8780 : Ref sig .tc := ⟨.hbm, 9662, rfl⟩
abbrev main_cst_876 : Ref sig .tc := ⟨.hbm, 9663, rfl⟩
abbrev main_v8781 : Ref sig .tc := ⟨.hbm, 9664, rfl⟩
abbrev main_c_877 : Ref sig .tc := ⟨.hbm, 9665, rfl⟩
abbrev main_v8782 : Ref sig .tc := ⟨.hbm, 9666, rfl⟩
abbrev main_v8783 : Ref sig .tc := ⟨.hbm, 9667, rfl⟩
abbrev main_v8784 : Ref sig .tc := ⟨.hbm, 9668, rfl⟩
abbrev main_v8785 : Ref sig .tc := ⟨.hbm, 9669, rfl⟩
abbrev main_v8786 : Ref sig .tc := ⟨.hbm, 9670, rfl⟩
abbrev main_v8787 : Ref sig .tc := ⟨.hbm, 9671, rfl⟩
abbrev main_v8788 : Ref sig .tc := ⟨.hbm, 9672, rfl⟩
abbrev main_v8789 : Ref sig .tc := ⟨.hbm, 9673, rfl⟩
abbrev main_v8790 : Ref sig .tc := ⟨.hbm, 9674, rfl⟩
abbrev main_v8791 : Ref sig .tc := ⟨.hbm, 9675, rfl⟩
abbrev main_v8792 : Ref sig .tc := ⟨.hbm, 9676, rfl⟩
abbrev main_v8793 : Ref sig .tc := ⟨.hbm, 9677, rfl⟩
abbrev main_v8794 : Ref sig .tc := ⟨.hbm, 9678, rfl⟩
abbrev main_v8795 : Ref sig .tc := ⟨.hbm, 9679, rfl⟩
abbrev main_v8796 : Ref sig .tc := ⟨.hbm, 9680, rfl⟩
abbrev main_v8797 : Ref sig .tc := ⟨.hbm, 9681, rfl⟩
abbrev main_v8798 : Ref sig .tc := ⟨.hbm, 9682, rfl⟩
abbrev main_v8799 : Ref sig .tc := ⟨.hbm, 9683, rfl⟩
abbrev main_v8800 : Ref sig .tc := ⟨.hbm, 9684, rfl⟩
abbrev main_cst_878 : Ref sig .tc := ⟨.hbm, 9685, rfl⟩
abbrev main_v8801 : Ref sig .tc := ⟨.hbm, 9686, rfl⟩
abbrev main_c_879 : Ref sig .tc := ⟨.hbm, 9687, rfl⟩
abbrev main_v8802 : Ref sig .tc := ⟨.hbm, 9688, rfl⟩
abbrev main_v8803 : Ref sig .tc := ⟨.hbm, 9689, rfl⟩
abbrev main_v8804 : Ref sig .tc := ⟨.hbm, 9690, rfl⟩
abbrev main_v8805 : Ref sig .tc := ⟨.hbm, 9691, rfl⟩
abbrev main_v8806 : Ref sig .tc := ⟨.hbm, 9692, rfl⟩
abbrev main_v8807 : Ref sig .tc := ⟨.hbm, 9693, rfl⟩
abbrev main_v8808 : Ref sig .tc := ⟨.hbm, 9694, rfl⟩
abbrev main_v8809 : Ref sig .tc := ⟨.hbm, 9695, rfl⟩
abbrev main_v8810 : Ref sig .tc := ⟨.hbm, 9696, rfl⟩
abbrev main_v8811 : Ref sig .tc := ⟨.hbm, 9697, rfl⟩
abbrev main_v8812 : Ref sig .tc := ⟨.hbm, 9698, rfl⟩
abbrev main_v8813 : Ref sig .tc := ⟨.hbm, 9699, rfl⟩
abbrev main_v8814 : Ref sig .tc := ⟨.hbm, 9700, rfl⟩
abbrev main_v8815 : Ref sig .tc := ⟨.hbm, 9701, rfl⟩
abbrev main_v8816 : Ref sig .tc := ⟨.hbm, 9702, rfl⟩
abbrev main_v8817 : Ref sig .tc := ⟨.hbm, 9703, rfl⟩
abbrev main_v8818 : Ref sig .tc := ⟨.hbm, 9704, rfl⟩
abbrev main_v8819 : Ref sig .tc := ⟨.hbm, 9705, rfl⟩
abbrev main_v8820 : Ref sig .tc := ⟨.hbm, 9706, rfl⟩
abbrev main_cst_880 : Ref sig .tc := ⟨.hbm, 9707, rfl⟩
abbrev main_v8821 : Ref sig .tc := ⟨.hbm, 9708, rfl⟩
abbrev main_c_881 : Ref sig .tc := ⟨.hbm, 9709, rfl⟩
abbrev main_v8822 : Ref sig .tc := ⟨.hbm, 9710, rfl⟩
abbrev main_v8823 : Ref sig .tc := ⟨.hbm, 9711, rfl⟩
abbrev main_v8824 : Ref sig .tc := ⟨.hbm, 9712, rfl⟩
abbrev main_v8825 : Ref sig .tc := ⟨.hbm, 9713, rfl⟩
abbrev main_v8826 : Ref sig .tc := ⟨.hbm, 9714, rfl⟩
abbrev main_v8827 : Ref sig .tc := ⟨.hbm, 9715, rfl⟩
abbrev main_v8828 : Ref sig .tc := ⟨.hbm, 9716, rfl⟩
abbrev main_v8829 : Ref sig .tc := ⟨.hbm, 9717, rfl⟩
abbrev main_v8830 : Ref sig .tc := ⟨.hbm, 9718, rfl⟩
abbrev main_v8831 : Ref sig .tc := ⟨.hbm, 9719, rfl⟩
abbrev main_v8832 : Ref sig .tc := ⟨.hbm, 9720, rfl⟩
abbrev main_v8833 : Ref sig .tc := ⟨.hbm, 9721, rfl⟩
abbrev main_v8834 : Ref sig .tc := ⟨.hbm, 9722, rfl⟩
abbrev main_v8835 : Ref sig .tc := ⟨.hbm, 9723, rfl⟩
abbrev main_v8836 : Ref sig .tc := ⟨.hbm, 9724, rfl⟩
abbrev main_v8837 : Ref sig .tc := ⟨.hbm, 9725, rfl⟩
abbrev main_v8838 : Ref sig .tc := ⟨.hbm, 9726, rfl⟩
abbrev main_v8839 : Ref sig .tc := ⟨.hbm, 9727, rfl⟩
abbrev main_v8840 : Ref sig .tc := ⟨.hbm, 9728, rfl⟩
abbrev main_cst_882 : Ref sig .tc := ⟨.hbm, 9729, rfl⟩
abbrev main_v8841 : Ref sig .tc := ⟨.hbm, 9730, rfl⟩
abbrev main_c_883 : Ref sig .tc := ⟨.hbm, 9731, rfl⟩
abbrev main_v8842 : Ref sig .tc := ⟨.hbm, 9732, rfl⟩
abbrev main_v8843 : Ref sig .tc := ⟨.hbm, 9733, rfl⟩
abbrev main_v8844 : Ref sig .tc := ⟨.hbm, 9734, rfl⟩
abbrev main_v8845 : Ref sig .tc := ⟨.hbm, 9735, rfl⟩
abbrev main_v8846 : Ref sig .tc := ⟨.hbm, 9736, rfl⟩
abbrev main_v8847 : Ref sig .tc := ⟨.hbm, 9737, rfl⟩
abbrev main_v8848 : Ref sig .tc := ⟨.hbm, 9738, rfl⟩
abbrev main_v8849 : Ref sig .tc := ⟨.hbm, 9739, rfl⟩
abbrev main_v8850 : Ref sig .tc := ⟨.hbm, 9740, rfl⟩
abbrev main_v8851 : Ref sig .tc := ⟨.hbm, 9741, rfl⟩
abbrev main_v8852 : Ref sig .tc := ⟨.hbm, 9742, rfl⟩
abbrev main_v8853 : Ref sig .tc := ⟨.hbm, 9743, rfl⟩
abbrev main_v8854 : Ref sig .tc := ⟨.hbm, 9744, rfl⟩
abbrev main_v8855 : Ref sig .tc := ⟨.hbm, 9745, rfl⟩
abbrev main_v8856 : Ref sig .tc := ⟨.hbm, 9746, rfl⟩
abbrev main_v8857 : Ref sig .tc := ⟨.hbm, 9747, rfl⟩
abbrev main_v8858 : Ref sig .tc := ⟨.hbm, 9748, rfl⟩
abbrev main_v8859 : Ref sig .tc := ⟨.hbm, 9749, rfl⟩
abbrev main_v8860 : Ref sig .tc := ⟨.hbm, 9750, rfl⟩
abbrev main_cst_884 : Ref sig .tc := ⟨.hbm, 9751, rfl⟩
abbrev main_v8861 : Ref sig .tc := ⟨.hbm, 9752, rfl⟩
abbrev main_c_885 : Ref sig .tc := ⟨.hbm, 9753, rfl⟩
abbrev main_v8862 : Ref sig .tc := ⟨.hbm, 9754, rfl⟩
abbrev main_v8863 : Ref sig .tc := ⟨.hbm, 9755, rfl⟩
abbrev main_v8864 : Ref sig .tc := ⟨.hbm, 9756, rfl⟩
abbrev main_v8865 : Ref sig .tc := ⟨.hbm, 9757, rfl⟩
abbrev main_v8866 : Ref sig .tc := ⟨.hbm, 9758, rfl⟩
abbrev main_v8867 : Ref sig .tc := ⟨.hbm, 9759, rfl⟩
abbrev main_v8868 : Ref sig .tc := ⟨.hbm, 9760, rfl⟩
abbrev main_v8869 : Ref sig .tc := ⟨.hbm, 9761, rfl⟩
abbrev main_v8870 : Ref sig .tc := ⟨.hbm, 9762, rfl⟩
abbrev main_v8871 : Ref sig .tc := ⟨.hbm, 9763, rfl⟩
abbrev main_v8872 : Ref sig .tc := ⟨.hbm, 9764, rfl⟩
abbrev main_v8873 : Ref sig .tc := ⟨.hbm, 9765, rfl⟩
abbrev main_v8874 : Ref sig .tc := ⟨.hbm, 9766, rfl⟩
abbrev main_v8875 : Ref sig .tc := ⟨.hbm, 9767, rfl⟩
abbrev main_v8876 : Ref sig .tc := ⟨.hbm, 9768, rfl⟩
abbrev main_v8877 : Ref sig .tc := ⟨.hbm, 9769, rfl⟩
abbrev main_v8878 : Ref sig .tc := ⟨.hbm, 9770, rfl⟩
abbrev main_v8879 : Ref sig .tc := ⟨.hbm, 9771, rfl⟩
abbrev main_v8880 : Ref sig .tc := ⟨.hbm, 9772, rfl⟩
abbrev main_cst_886 : Ref sig .tc := ⟨.hbm, 9773, rfl⟩
abbrev main_v8881 : Ref sig .tc := ⟨.hbm, 9774, rfl⟩
abbrev main_c_887 : Ref sig .tc := ⟨.hbm, 9775, rfl⟩
abbrev main_v8882 : Ref sig .tc := ⟨.hbm, 9776, rfl⟩
abbrev main_v8883 : Ref sig .tc := ⟨.hbm, 9777, rfl⟩
abbrev main_v8884 : Ref sig .tc := ⟨.hbm, 9778, rfl⟩
abbrev main_v8885 : Ref sig .tc := ⟨.hbm, 9779, rfl⟩
abbrev main_v8886 : Ref sig .tc := ⟨.hbm, 9780, rfl⟩
abbrev main_v8887 : Ref sig .tc := ⟨.hbm, 9781, rfl⟩
abbrev main_v8888 : Ref sig .tc := ⟨.hbm, 9782, rfl⟩
abbrev main_v8889 : Ref sig .tc := ⟨.hbm, 9783, rfl⟩
abbrev main_v8890 : Ref sig .tc := ⟨.hbm, 9784, rfl⟩
abbrev main_v8891 : Ref sig .tc := ⟨.hbm, 9785, rfl⟩
abbrev main_v8892 : Ref sig .tc := ⟨.hbm, 9786, rfl⟩
abbrev main_v8893 : Ref sig .tc := ⟨.hbm, 9787, rfl⟩
abbrev main_v8894 : Ref sig .tc := ⟨.hbm, 9788, rfl⟩
abbrev main_v8895 : Ref sig .tc := ⟨.hbm, 9789, rfl⟩
abbrev main_v8896 : Ref sig .tc := ⟨.hbm, 9790, rfl⟩
abbrev main_v8897 : Ref sig .tc := ⟨.hbm, 9791, rfl⟩
abbrev main_v8898 : Ref sig .tc := ⟨.hbm, 9792, rfl⟩
abbrev main_v8899 : Ref sig .tc := ⟨.hbm, 9793, rfl⟩
abbrev main_v8900 : Ref sig .tc := ⟨.hbm, 9794, rfl⟩
abbrev main_cst_888 : Ref sig .tc := ⟨.hbm, 9795, rfl⟩
abbrev main_v8901 : Ref sig .tc := ⟨.hbm, 9796, rfl⟩
abbrev main_c_889 : Ref sig .tc := ⟨.hbm, 9797, rfl⟩
abbrev main_v8902 : Ref sig .tc := ⟨.hbm, 9798, rfl⟩
abbrev main_v8903 : Ref sig .tc := ⟨.hbm, 9799, rfl⟩
abbrev main_v8904 : Ref sig .tc := ⟨.hbm, 9800, rfl⟩
abbrev main_v8905 : Ref sig .tc := ⟨.hbm, 9801, rfl⟩
abbrev main_v8906 : Ref sig .tc := ⟨.hbm, 9802, rfl⟩
abbrev main_v8907 : Ref sig .tc := ⟨.hbm, 9803, rfl⟩
abbrev main_v8908 : Ref sig .tc := ⟨.hbm, 9804, rfl⟩
abbrev main_v8909 : Ref sig .tc := ⟨.hbm, 9805, rfl⟩
abbrev main_v8910 : Ref sig .tc := ⟨.hbm, 9806, rfl⟩
abbrev main_v8911 : Ref sig .tc := ⟨.hbm, 9807, rfl⟩
abbrev main_v8912 : Ref sig .tc := ⟨.hbm, 9808, rfl⟩
abbrev main_v8913 : Ref sig .tc := ⟨.hbm, 9809, rfl⟩
abbrev main_v8914 : Ref sig .tc := ⟨.hbm, 9810, rfl⟩
abbrev main_v8915 : Ref sig .tc := ⟨.hbm, 9811, rfl⟩
abbrev main_v8916 : Ref sig .tc := ⟨.hbm, 9812, rfl⟩
abbrev main_v8917 : Ref sig .tc := ⟨.hbm, 9813, rfl⟩
abbrev main_v8918 : Ref sig .tc := ⟨.hbm, 9814, rfl⟩
abbrev main_v8919 : Ref sig .tc := ⟨.hbm, 9815, rfl⟩
abbrev main_v8920 : Ref sig .tc := ⟨.hbm, 9816, rfl⟩
abbrev main_cst_890 : Ref sig .tc := ⟨.hbm, 9817, rfl⟩
abbrev main_v8921 : Ref sig .tc := ⟨.hbm, 9818, rfl⟩
abbrev main_c_891 : Ref sig .tc := ⟨.hbm, 9819, rfl⟩
abbrev main_v8922 : Ref sig .tc := ⟨.hbm, 9820, rfl⟩
abbrev main_v8923 : Ref sig .tc := ⟨.hbm, 9821, rfl⟩
abbrev main_v8924 : Ref sig .tc := ⟨.hbm, 9822, rfl⟩
abbrev main_v8925 : Ref sig .tc := ⟨.hbm, 9823, rfl⟩
abbrev main_v8926 : Ref sig .tc := ⟨.hbm, 9824, rfl⟩
abbrev main_v8927 : Ref sig .tc := ⟨.hbm, 9825, rfl⟩
abbrev main_v8928 : Ref sig .tc := ⟨.hbm, 9826, rfl⟩
abbrev main_v8929 : Ref sig .tc := ⟨.hbm, 9827, rfl⟩
abbrev main_v8930 : Ref sig .tc := ⟨.hbm, 9828, rfl⟩
abbrev main_v8931 : Ref sig .tc := ⟨.hbm, 9829, rfl⟩
abbrev main_v8932 : Ref sig .tc := ⟨.hbm, 9830, rfl⟩
abbrev main_v8933 : Ref sig .tc := ⟨.hbm, 9831, rfl⟩
abbrev main_v8934 : Ref sig .tc := ⟨.hbm, 9832, rfl⟩
abbrev main_v8935 : Ref sig .tc := ⟨.hbm, 9833, rfl⟩
abbrev main_v8936 : Ref sig .tc := ⟨.hbm, 9834, rfl⟩
abbrev main_v8937 : Ref sig .tc := ⟨.hbm, 9835, rfl⟩
abbrev main_v8938 : Ref sig .tc := ⟨.hbm, 9836, rfl⟩
abbrev main_v8939 : Ref sig .tc := ⟨.hbm, 9837, rfl⟩
abbrev main_v8940 : Ref sig .tc := ⟨.hbm, 9838, rfl⟩
abbrev main_cst_892 : Ref sig .tc := ⟨.hbm, 9839, rfl⟩
abbrev main_v8941 : Ref sig .tc := ⟨.hbm, 9840, rfl⟩
abbrev main_c_893 : Ref sig .tc := ⟨.hbm, 9841, rfl⟩
abbrev main_v8942 : Ref sig .tc := ⟨.hbm, 9842, rfl⟩
abbrev main_v8943 : Ref sig .tc := ⟨.hbm, 9843, rfl⟩
abbrev main_v8944 : Ref sig .tc := ⟨.hbm, 9844, rfl⟩
abbrev main_v8945 : Ref sig .tc := ⟨.hbm, 9845, rfl⟩
abbrev main_v8946 : Ref sig .tc := ⟨.hbm, 9846, rfl⟩
abbrev main_v8947 : Ref sig .tc := ⟨.hbm, 9847, rfl⟩
abbrev main_v8948 : Ref sig .tc := ⟨.hbm, 9848, rfl⟩
abbrev main_v8949 : Ref sig .tc := ⟨.hbm, 9849, rfl⟩
abbrev main_v8950 : Ref sig .tc := ⟨.hbm, 9850, rfl⟩
abbrev main_v8951 : Ref sig .tc := ⟨.hbm, 9851, rfl⟩
abbrev main_v8952 : Ref sig .tc := ⟨.hbm, 9852, rfl⟩
abbrev main_v8953 : Ref sig .tc := ⟨.hbm, 9853, rfl⟩
abbrev main_v8954 : Ref sig .tc := ⟨.hbm, 9854, rfl⟩
abbrev main_v8955 : Ref sig .tc := ⟨.hbm, 9855, rfl⟩
abbrev main_v8956 : Ref sig .tc := ⟨.hbm, 9856, rfl⟩
abbrev main_v8957 : Ref sig .tc := ⟨.hbm, 9857, rfl⟩
abbrev main_v8958 : Ref sig .tc := ⟨.hbm, 9858, rfl⟩
abbrev main_v8959 : Ref sig .tc := ⟨.hbm, 9859, rfl⟩
abbrev main_v8960 : Ref sig .tc := ⟨.hbm, 9860, rfl⟩
abbrev main_cst_894 : Ref sig .tc := ⟨.hbm, 9861, rfl⟩
abbrev main_v8961 : Ref sig .tc := ⟨.hbm, 9862, rfl⟩
abbrev main_c_895 : Ref sig .tc := ⟨.hbm, 9863, rfl⟩
abbrev main_v8962 : Ref sig .tc := ⟨.hbm, 9864, rfl⟩
abbrev main_v8963 : Ref sig .tc := ⟨.hbm, 9865, rfl⟩
abbrev main_v8964 : Ref sig .tc := ⟨.hbm, 9866, rfl⟩
abbrev main_v8965 : Ref sig .tc := ⟨.hbm, 9867, rfl⟩
abbrev main_v8966 : Ref sig .tc := ⟨.hbm, 9868, rfl⟩
abbrev main_v8967 : Ref sig .tc := ⟨.hbm, 9869, rfl⟩
abbrev main_v8968 : Ref sig .tc := ⟨.hbm, 9870, rfl⟩
abbrev main_v8969 : Ref sig .tc := ⟨.hbm, 9871, rfl⟩
abbrev main_v8970 : Ref sig .tc := ⟨.hbm, 9872, rfl⟩
abbrev main_v8971 : Ref sig .tc := ⟨.hbm, 9873, rfl⟩
abbrev main_v8972 : Ref sig .tc := ⟨.hbm, 9874, rfl⟩
abbrev main_v8973 : Ref sig .tc := ⟨.hbm, 9875, rfl⟩
abbrev main_v8974 : Ref sig .tc := ⟨.hbm, 9876, rfl⟩
abbrev main_v8975 : Ref sig .tc := ⟨.hbm, 9877, rfl⟩
abbrev main_v8976 : Ref sig .tc := ⟨.hbm, 9878, rfl⟩
abbrev main_v8977 : Ref sig .tc := ⟨.hbm, 9879, rfl⟩
abbrev main_v8978 : Ref sig .tc := ⟨.hbm, 9880, rfl⟩
abbrev main_v8979 : Ref sig .tc := ⟨.hbm, 9881, rfl⟩
abbrev main_v8980 : Ref sig .tc := ⟨.hbm, 9882, rfl⟩
abbrev main_cst_896 : Ref sig .tc := ⟨.hbm, 9883, rfl⟩
abbrev main_v8981 : Ref sig .tc := ⟨.hbm, 9884, rfl⟩
abbrev main_c_897 : Ref sig .tc := ⟨.hbm, 9885, rfl⟩
abbrev main_v8982 : Ref sig .tc := ⟨.hbm, 9886, rfl⟩
abbrev main_v8983 : Ref sig .tc := ⟨.hbm, 9887, rfl⟩
abbrev main_v8984 : Ref sig .tc := ⟨.hbm, 9888, rfl⟩
abbrev main_v8985 : Ref sig .tc := ⟨.hbm, 9889, rfl⟩
abbrev main_v8986 : Ref sig .tc := ⟨.hbm, 9890, rfl⟩
abbrev main_v8987 : Ref sig .tc := ⟨.hbm, 9891, rfl⟩
abbrev main_v8988 : Ref sig .tc := ⟨.hbm, 9892, rfl⟩
abbrev main_v8989 : Ref sig .tc := ⟨.hbm, 9893, rfl⟩
abbrev main_v8990 : Ref sig .tc := ⟨.hbm, 9894, rfl⟩
abbrev main_v8991 : Ref sig .tc := ⟨.hbm, 9895, rfl⟩
abbrev main_v8992 : Ref sig .tc := ⟨.hbm, 9896, rfl⟩
abbrev main_v8993 : Ref sig .tc := ⟨.hbm, 9897, rfl⟩
abbrev main_v8994 : Ref sig .tc := ⟨.hbm, 9898, rfl⟩
abbrev main_v8995 : Ref sig .tc := ⟨.hbm, 9899, rfl⟩
abbrev main_v8996 : Ref sig .tc := ⟨.hbm, 9900, rfl⟩
abbrev main_v8997 : Ref sig .tc := ⟨.hbm, 9901, rfl⟩
abbrev main_v8998 : Ref sig .tc := ⟨.hbm, 9902, rfl⟩
abbrev main_v8999 : Ref sig .tc := ⟨.hbm, 9903, rfl⟩
abbrev main_v9000 : Ref sig .tc := ⟨.hbm, 9904, rfl⟩
abbrev main_cst_898 : Ref sig .tc := ⟨.hbm, 9905, rfl⟩
abbrev main_v9001 : Ref sig .tc := ⟨.hbm, 9906, rfl⟩
abbrev main_c_899 : Ref sig .tc := ⟨.hbm, 9907, rfl⟩
abbrev main_v9002 : Ref sig .tc := ⟨.hbm, 9908, rfl⟩
abbrev main_v9003 : Ref sig .tc := ⟨.hbm, 9909, rfl⟩
abbrev main_v9004 : Ref sig .tc := ⟨.hbm, 9910, rfl⟩
abbrev main_v9005 : Ref sig .tc := ⟨.hbm, 9911, rfl⟩
abbrev main_v9006 : Ref sig .tc := ⟨.hbm, 9912, rfl⟩
abbrev main_v9007 : Ref sig .tc := ⟨.hbm, 9913, rfl⟩
abbrev main_v9008 : Ref sig .tc := ⟨.hbm, 9914, rfl⟩
abbrev main_v9009 : Ref sig .tc := ⟨.hbm, 9915, rfl⟩
abbrev main_v9010 : Ref sig .tc := ⟨.hbm, 9916, rfl⟩
abbrev main_v9011 : Ref sig .tc := ⟨.hbm, 9917, rfl⟩
abbrev main_v9012 : Ref sig .tc := ⟨.hbm, 9918, rfl⟩
abbrev main_v9013 : Ref sig .tc := ⟨.hbm, 9919, rfl⟩
abbrev main_v9014 : Ref sig .tc := ⟨.hbm, 9920, rfl⟩
abbrev main_v9015 : Ref sig .tc := ⟨.hbm, 9921, rfl⟩
abbrev main_v9016 : Ref sig .tc := ⟨.hbm, 9922, rfl⟩
abbrev main_v9017 : Ref sig .tc := ⟨.hbm, 9923, rfl⟩
abbrev main_v9018 : Ref sig .tc := ⟨.hbm, 9924, rfl⟩
abbrev main_v9019 : Ref sig .tc := ⟨.hbm, 9925, rfl⟩
abbrev main_v9020 : Ref sig .tc := ⟨.hbm, 9926, rfl⟩
abbrev main_cst_900 : Ref sig .tc := ⟨.hbm, 9927, rfl⟩
abbrev main_v9021 : Ref sig .tc := ⟨.hbm, 9928, rfl⟩
abbrev main_c_901 : Ref sig .tc := ⟨.hbm, 9929, rfl⟩
abbrev main_v9022 : Ref sig .tc := ⟨.hbm, 9930, rfl⟩
abbrev main_v9023 : Ref sig .tc := ⟨.hbm, 9931, rfl⟩
abbrev main_v9024 : Ref sig .tc := ⟨.hbm, 9932, rfl⟩
abbrev main_v9025 : Ref sig .tc := ⟨.hbm, 9933, rfl⟩
abbrev main_v9026 : Ref sig .tc := ⟨.hbm, 9934, rfl⟩
abbrev main_v9027 : Ref sig .tc := ⟨.hbm, 9935, rfl⟩
abbrev main_v9028 : Ref sig .tc := ⟨.hbm, 9936, rfl⟩
abbrev main_v9029 : Ref sig .tc := ⟨.hbm, 9937, rfl⟩
abbrev main_v9030 : Ref sig .tc := ⟨.hbm, 9938, rfl⟩
abbrev main_v9031 : Ref sig .tc := ⟨.hbm, 9939, rfl⟩
abbrev main_v9032 : Ref sig .tc := ⟨.hbm, 9940, rfl⟩
abbrev main_v9033 : Ref sig .tc := ⟨.hbm, 9941, rfl⟩
abbrev main_v9034 : Ref sig .tc := ⟨.hbm, 9942, rfl⟩
abbrev main_v9035 : Ref sig .tc := ⟨.hbm, 9943, rfl⟩
abbrev main_v9036 : Ref sig .tc := ⟨.hbm, 9944, rfl⟩
abbrev main_v9037 : Ref sig .tc := ⟨.hbm, 9945, rfl⟩
abbrev main_v9038 : Ref sig .tc := ⟨.hbm, 9946, rfl⟩
abbrev main_v9039 : Ref sig .tc := ⟨.hbm, 9947, rfl⟩
abbrev main_v9040 : Ref sig .tc := ⟨.hbm, 9948, rfl⟩
abbrev main_cst_902 : Ref sig .tc := ⟨.hbm, 9949, rfl⟩
abbrev main_v9041 : Ref sig .tc := ⟨.hbm, 9950, rfl⟩
abbrev main_c_903 : Ref sig .tc := ⟨.hbm, 9951, rfl⟩
abbrev main_v9042 : Ref sig .tc := ⟨.hbm, 9952, rfl⟩
abbrev main_v9043 : Ref sig .tc := ⟨.hbm, 9953, rfl⟩
abbrev main_v9044 : Ref sig .tc := ⟨.hbm, 9954, rfl⟩
abbrev main_v9045 : Ref sig .tc := ⟨.hbm, 9955, rfl⟩
abbrev main_v9046 : Ref sig .tc := ⟨.hbm, 9956, rfl⟩
abbrev main_v9047 : Ref sig .tc := ⟨.hbm, 9957, rfl⟩
abbrev main_v9048 : Ref sig .tc := ⟨.hbm, 9958, rfl⟩
abbrev main_v9049 : Ref sig .tc := ⟨.hbm, 9959, rfl⟩
abbrev main_v9050 : Ref sig .tc := ⟨.hbm, 9960, rfl⟩
abbrev main_v9051 : Ref sig .tc := ⟨.hbm, 9961, rfl⟩
abbrev main_v9052 : Ref sig .tc := ⟨.hbm, 9962, rfl⟩
abbrev main_v9053 : Ref sig .tc := ⟨.hbm, 9963, rfl⟩
abbrev main_v9054 : Ref sig .tc := ⟨.hbm, 9964, rfl⟩
abbrev main_v9055 : Ref sig .tc := ⟨.hbm, 9965, rfl⟩
abbrev main_v9056 : Ref sig .tc := ⟨.hbm, 9966, rfl⟩
abbrev main_v9057 : Ref sig .tc := ⟨.hbm, 9967, rfl⟩
abbrev main_v9058 : Ref sig .tc := ⟨.hbm, 9968, rfl⟩
abbrev main_v9059 : Ref sig .tc := ⟨.hbm, 9969, rfl⟩
abbrev main_v9060 : Ref sig .tc := ⟨.hbm, 9970, rfl⟩
abbrev main_cst_904 : Ref sig .tc := ⟨.hbm, 9971, rfl⟩
abbrev main_v9061 : Ref sig .tc := ⟨.hbm, 9972, rfl⟩
abbrev main_c_905 : Ref sig .tc := ⟨.hbm, 9973, rfl⟩
abbrev main_v9062 : Ref sig .tc := ⟨.hbm, 9974, rfl⟩
abbrev main_v9063 : Ref sig .tc := ⟨.hbm, 9975, rfl⟩
abbrev main_v9064 : Ref sig .tc := ⟨.hbm, 9976, rfl⟩
abbrev main_v9065 : Ref sig .tc := ⟨.hbm, 9977, rfl⟩
abbrev main_v9066 : Ref sig .tc := ⟨.hbm, 9978, rfl⟩
abbrev main_v9067 : Ref sig .tc := ⟨.hbm, 9979, rfl⟩
abbrev main_v9068 : Ref sig .tc := ⟨.hbm, 9980, rfl⟩
abbrev main_v9069 : Ref sig .tc := ⟨.hbm, 9981, rfl⟩
abbrev main_v9070 : Ref sig .tc := ⟨.hbm, 9982, rfl⟩
abbrev main_v9071 : Ref sig .tc := ⟨.hbm, 9983, rfl⟩
abbrev main_v9072 : Ref sig .tc := ⟨.hbm, 9984, rfl⟩
abbrev main_v9073 : Ref sig .tc := ⟨.hbm, 9985, rfl⟩
abbrev main_v9074 : Ref sig .tc := ⟨.hbm, 9986, rfl⟩
abbrev main_v9075 : Ref sig .tc := ⟨.hbm, 9987, rfl⟩
abbrev main_v9076 : Ref sig .tc := ⟨.hbm, 9988, rfl⟩
abbrev main_v9077 : Ref sig .tc := ⟨.hbm, 9989, rfl⟩
abbrev main_v9078 : Ref sig .tc := ⟨.hbm, 9990, rfl⟩
abbrev main_v9079 : Ref sig .tc := ⟨.hbm, 9991, rfl⟩
abbrev main_v9080 : Ref sig .tc := ⟨.hbm, 9992, rfl⟩
abbrev main_cst_906 : Ref sig .tc := ⟨.hbm, 9993, rfl⟩
abbrev main_v9081 : Ref sig .tc := ⟨.hbm, 9994, rfl⟩
abbrev main_c_907 : Ref sig .tc := ⟨.hbm, 9995, rfl⟩
abbrev main_v9082 : Ref sig .tc := ⟨.hbm, 9996, rfl⟩
abbrev main_v9083 : Ref sig .tc := ⟨.hbm, 9997, rfl⟩
abbrev main_v9084 : Ref sig .tc := ⟨.hbm, 9998, rfl⟩
abbrev main_v9085 : Ref sig .tc := ⟨.hbm, 9999, rfl⟩
abbrev main_v9086 : Ref sig .tc := ⟨.hbm, 10000, rfl⟩
abbrev main_v9087 : Ref sig .tc := ⟨.hbm, 10001, rfl⟩
abbrev main_v9088 : Ref sig .tc := ⟨.hbm, 10002, rfl⟩
abbrev main_v9089 : Ref sig .tc := ⟨.hbm, 10003, rfl⟩
abbrev main_v9090 : Ref sig .tc := ⟨.hbm, 10004, rfl⟩
abbrev main_v9091 : Ref sig .tc := ⟨.hbm, 10005, rfl⟩
abbrev main_v9092 : Ref sig .tc := ⟨.hbm, 10006, rfl⟩
abbrev main_v9093 : Ref sig .tc := ⟨.hbm, 10007, rfl⟩
abbrev main_v9094 : Ref sig .tc := ⟨.hbm, 10008, rfl⟩
abbrev main_v9095 : Ref sig .tc := ⟨.hbm, 10009, rfl⟩
abbrev main_v9096 : Ref sig .tc := ⟨.hbm, 10010, rfl⟩
abbrev main_v9097 : Ref sig .tc := ⟨.hbm, 10011, rfl⟩
abbrev main_v9098 : Ref sig .tc := ⟨.hbm, 10012, rfl⟩
abbrev main_v9099 : Ref sig .tc := ⟨.hbm, 10013, rfl⟩
abbrev main_v9100 : Ref sig .tc := ⟨.hbm, 10014, rfl⟩
abbrev main_cst_908 : Ref sig .tc := ⟨.hbm, 10015, rfl⟩
abbrev main_v9101 : Ref sig .tc := ⟨.hbm, 10016, rfl⟩
abbrev main_c_909 : Ref sig .tc := ⟨.hbm, 10017, rfl⟩
abbrev main_v9102 : Ref sig .tc := ⟨.hbm, 10018, rfl⟩
abbrev main_v9103 : Ref sig .tc := ⟨.hbm, 10019, rfl⟩
abbrev main_v9104 : Ref sig .tc := ⟨.hbm, 10020, rfl⟩
abbrev main_v9105 : Ref sig .tc := ⟨.hbm, 10021, rfl⟩
abbrev main_v9106 : Ref sig .tc := ⟨.hbm, 10022, rfl⟩
abbrev main_v9107 : Ref sig .tc := ⟨.hbm, 10023, rfl⟩
abbrev main_v9108 : Ref sig .tc := ⟨.hbm, 10024, rfl⟩
abbrev main_v9109 : Ref sig .tc := ⟨.hbm, 10025, rfl⟩
abbrev main_v9110 : Ref sig .tc := ⟨.hbm, 10026, rfl⟩
abbrev main_v9111 : Ref sig .tc := ⟨.hbm, 10027, rfl⟩
abbrev main_v9112 : Ref sig .tc := ⟨.hbm, 10028, rfl⟩
abbrev main_v9113 : Ref sig .tc := ⟨.hbm, 10029, rfl⟩
abbrev main_v9114 : Ref sig .tc := ⟨.hbm, 10030, rfl⟩
abbrev main_v9115 : Ref sig .tc := ⟨.hbm, 10031, rfl⟩
abbrev main_v9116 : Ref sig .tc := ⟨.hbm, 10032, rfl⟩
abbrev main_v9117 : Ref sig .tc := ⟨.hbm, 10033, rfl⟩
abbrev main_v9118 : Ref sig .tc := ⟨.hbm, 10034, rfl⟩
abbrev main_v9119 : Ref sig .tc := ⟨.hbm, 10035, rfl⟩
abbrev main_v9120 : Ref sig .tc := ⟨.hbm, 10036, rfl⟩
abbrev main_cst_910 : Ref sig .tc := ⟨.hbm, 10037, rfl⟩
abbrev main_v9121 : Ref sig .tc := ⟨.hbm, 10038, rfl⟩
abbrev main_c_911 : Ref sig .tc := ⟨.hbm, 10039, rfl⟩
abbrev main_v9122 : Ref sig .tc := ⟨.hbm, 10040, rfl⟩
abbrev main_v9123 : Ref sig .tc := ⟨.hbm, 10041, rfl⟩
abbrev main_v9124 : Ref sig .tc := ⟨.hbm, 10042, rfl⟩
abbrev main_v9125 : Ref sig .tc := ⟨.hbm, 10043, rfl⟩
abbrev main_v9126 : Ref sig .tc := ⟨.hbm, 10044, rfl⟩
abbrev main_v9127 : Ref sig .tc := ⟨.hbm, 10045, rfl⟩
abbrev main_v9128 : Ref sig .tc := ⟨.hbm, 10046, rfl⟩
abbrev main_v9129 : Ref sig .tc := ⟨.hbm, 10047, rfl⟩
abbrev main_v9130 : Ref sig .tc := ⟨.hbm, 10048, rfl⟩
abbrev main_v9131 : Ref sig .tc := ⟨.hbm, 10049, rfl⟩
abbrev main_v9132 : Ref sig .tc := ⟨.hbm, 10050, rfl⟩
abbrev main_v9133 : Ref sig .tc := ⟨.hbm, 10051, rfl⟩
abbrev main_v9134 : Ref sig .tc := ⟨.hbm, 10052, rfl⟩
abbrev main_v9135 : Ref sig .tc := ⟨.hbm, 10053, rfl⟩
abbrev main_v9136 : Ref sig .tc := ⟨.hbm, 10054, rfl⟩
abbrev main_v9137 : Ref sig .tc := ⟨.hbm, 10055, rfl⟩
abbrev main_v9138 : Ref sig .tc := ⟨.hbm, 10056, rfl⟩
abbrev main_v9139 : Ref sig .tc := ⟨.hbm, 10057, rfl⟩
abbrev main_v9140 : Ref sig .tc := ⟨.hbm, 10058, rfl⟩
abbrev main_cst_912 : Ref sig .tc := ⟨.hbm, 10059, rfl⟩
abbrev main_v9141 : Ref sig .tc := ⟨.hbm, 10060, rfl⟩
abbrev main_c_913 : Ref sig .tc := ⟨.hbm, 10061, rfl⟩
abbrev main_v9142 : Ref sig .tc := ⟨.hbm, 10062, rfl⟩
abbrev main_v9143 : Ref sig .tc := ⟨.hbm, 10063, rfl⟩
abbrev main_v9144 : Ref sig .tc := ⟨.hbm, 10064, rfl⟩
abbrev main_v9145 : Ref sig .tc := ⟨.hbm, 10065, rfl⟩
abbrev main_v9146 : Ref sig .tc := ⟨.hbm, 10066, rfl⟩
abbrev main_v9147 : Ref sig .tc := ⟨.hbm, 10067, rfl⟩
abbrev main_v9148 : Ref sig .tc := ⟨.hbm, 10068, rfl⟩
abbrev main_v9149 : Ref sig .tc := ⟨.hbm, 10069, rfl⟩
abbrev main_v9150 : Ref sig .tc := ⟨.hbm, 10070, rfl⟩
abbrev main_v9151 : Ref sig .tc := ⟨.hbm, 10071, rfl⟩
abbrev main_v9152 : Ref sig .tc := ⟨.hbm, 10072, rfl⟩
abbrev main_v9153 : Ref sig .tc := ⟨.hbm, 10073, rfl⟩
abbrev main_v9154 : Ref sig .tc := ⟨.hbm, 10074, rfl⟩
abbrev main_v9155 : Ref sig .tc := ⟨.hbm, 10075, rfl⟩
abbrev main_v9156 : Ref sig .tc := ⟨.hbm, 10076, rfl⟩
abbrev main_v9157 : Ref sig .tc := ⟨.hbm, 10077, rfl⟩
abbrev main_v9158 : Ref sig .tc := ⟨.hbm, 10078, rfl⟩
abbrev main_v9159 : Ref sig .tc := ⟨.hbm, 10079, rfl⟩
abbrev main_v9160 : Ref sig .tc := ⟨.hbm, 10080, rfl⟩
abbrev main_cst_914 : Ref sig .tc := ⟨.hbm, 10081, rfl⟩
abbrev main_v9161 : Ref sig .tc := ⟨.hbm, 10082, rfl⟩
abbrev main_c_915 : Ref sig .tc := ⟨.hbm, 10083, rfl⟩
abbrev main_v9162 : Ref sig .tc := ⟨.hbm, 10084, rfl⟩
abbrev main_v9163 : Ref sig .tc := ⟨.hbm, 10085, rfl⟩
abbrev main_v9164 : Ref sig .tc := ⟨.hbm, 10086, rfl⟩
abbrev main_v9165 : Ref sig .tc := ⟨.hbm, 10087, rfl⟩
abbrev main_v9166 : Ref sig .tc := ⟨.hbm, 10088, rfl⟩
abbrev main_v9167 : Ref sig .tc := ⟨.hbm, 10089, rfl⟩
abbrev main_v9168 : Ref sig .tc := ⟨.hbm, 10090, rfl⟩
abbrev main_v9169 : Ref sig .tc := ⟨.hbm, 10091, rfl⟩
abbrev main_v9170 : Ref sig .tc := ⟨.hbm, 10092, rfl⟩
abbrev main_v9171 : Ref sig .tc := ⟨.hbm, 10093, rfl⟩
abbrev main_v9172 : Ref sig .tc := ⟨.hbm, 10094, rfl⟩
abbrev main_v9173 : Ref sig .tc := ⟨.hbm, 10095, rfl⟩
abbrev main_v9174 : Ref sig .tc := ⟨.hbm, 10096, rfl⟩
abbrev main_v9175 : Ref sig .tc := ⟨.hbm, 10097, rfl⟩
abbrev main_v9176 : Ref sig .tc := ⟨.hbm, 10098, rfl⟩
abbrev main_v9177 : Ref sig .tc := ⟨.hbm, 10099, rfl⟩
abbrev main_v9178 : Ref sig .tc := ⟨.hbm, 10100, rfl⟩
abbrev main_v9179 : Ref sig .tc := ⟨.hbm, 10101, rfl⟩
abbrev main_v9180 : Ref sig .tc := ⟨.hbm, 10102, rfl⟩
abbrev main_cst_916 : Ref sig .tc := ⟨.hbm, 10103, rfl⟩
abbrev main_v9181 : Ref sig .tc := ⟨.hbm, 10104, rfl⟩
abbrev main_c_917 : Ref sig .tc := ⟨.hbm, 10105, rfl⟩
abbrev main_v9182 : Ref sig .tc := ⟨.hbm, 10106, rfl⟩
abbrev main_v9183 : Ref sig .tc := ⟨.hbm, 10107, rfl⟩
abbrev main_v9184 : Ref sig .tc := ⟨.hbm, 10108, rfl⟩
abbrev main_v9185 : Ref sig .tc := ⟨.hbm, 10109, rfl⟩
abbrev main_v9186 : Ref sig .tc := ⟨.hbm, 10110, rfl⟩
abbrev main_v9187 : Ref sig .tc := ⟨.hbm, 10111, rfl⟩
abbrev main_v9188 : Ref sig .tc := ⟨.hbm, 10112, rfl⟩
abbrev main_v9189 : Ref sig .tc := ⟨.hbm, 10113, rfl⟩
abbrev main_v9190 : Ref sig .tc := ⟨.hbm, 10114, rfl⟩
abbrev main_v9191 : Ref sig .tc := ⟨.hbm, 10115, rfl⟩
abbrev main_v9192 : Ref sig .tc := ⟨.hbm, 10116, rfl⟩
abbrev main_v9193 : Ref sig .tc := ⟨.hbm, 10117, rfl⟩
abbrev main_v9194 : Ref sig .tc := ⟨.hbm, 10118, rfl⟩
abbrev main_v9195 : Ref sig .tc := ⟨.hbm, 10119, rfl⟩
abbrev main_v9196 : Ref sig .tc := ⟨.hbm, 10120, rfl⟩
abbrev main_v9197 : Ref sig .tc := ⟨.hbm, 10121, rfl⟩
abbrev main_v9198 : Ref sig .tc := ⟨.hbm, 10122, rfl⟩
abbrev main_v9199 : Ref sig .tc := ⟨.hbm, 10123, rfl⟩
abbrev main_v9200 : Ref sig .tc := ⟨.hbm, 10124, rfl⟩
abbrev main_cst_918 : Ref sig .tc := ⟨.hbm, 10125, rfl⟩
abbrev main_v9201 : Ref sig .tc := ⟨.hbm, 10126, rfl⟩
abbrev main_c_919 : Ref sig .tc := ⟨.hbm, 10127, rfl⟩
abbrev main_v9202 : Ref sig .tc := ⟨.hbm, 10128, rfl⟩
abbrev main_v9203 : Ref sig .tc := ⟨.hbm, 10129, rfl⟩
abbrev main_v9204 : Ref sig .tc := ⟨.hbm, 10130, rfl⟩
abbrev main_v9205 : Ref sig .tc := ⟨.hbm, 10131, rfl⟩
abbrev main_v9206 : Ref sig .tc := ⟨.hbm, 10132, rfl⟩
abbrev main_v9207 : Ref sig .tc := ⟨.hbm, 10133, rfl⟩
abbrev main_v9208 : Ref sig .tc := ⟨.hbm, 10134, rfl⟩
abbrev main_v9209 : Ref sig .tc := ⟨.hbm, 10135, rfl⟩
abbrev main_v9210 : Ref sig .tc := ⟨.hbm, 10136, rfl⟩
abbrev main_v9211 : Ref sig .tc := ⟨.hbm, 10137, rfl⟩
abbrev main_v9212 : Ref sig .tc := ⟨.hbm, 10138, rfl⟩
abbrev main_v9213 : Ref sig .tc := ⟨.hbm, 10139, rfl⟩
abbrev main_v9214 : Ref sig .tc := ⟨.hbm, 10140, rfl⟩
abbrev main_v9215 : Ref sig .tc := ⟨.hbm, 10141, rfl⟩
abbrev main_v9216 : Ref sig .tc := ⟨.hbm, 10142, rfl⟩
abbrev main_v9217 : Ref sig .tc := ⟨.hbm, 10143, rfl⟩
abbrev main_v9218 : Ref sig .tc := ⟨.hbm, 10144, rfl⟩
abbrev main_v9219 : Ref sig .tc := ⟨.hbm, 10145, rfl⟩
abbrev main_v9220 : Ref sig .tc := ⟨.hbm, 10146, rfl⟩
abbrev main_cst_920 : Ref sig .tc := ⟨.hbm, 10147, rfl⟩
abbrev main_v9221 : Ref sig .tc := ⟨.hbm, 10148, rfl⟩
abbrev main_c_921 : Ref sig .tc := ⟨.hbm, 10149, rfl⟩
abbrev main_v9222 : Ref sig .tc := ⟨.hbm, 10150, rfl⟩
abbrev main_v9223 : Ref sig .tc := ⟨.hbm, 10151, rfl⟩
abbrev main_v9224 : Ref sig .tc := ⟨.hbm, 10152, rfl⟩
abbrev main_v9225 : Ref sig .tc := ⟨.hbm, 10153, rfl⟩
abbrev main_v9226 : Ref sig .tc := ⟨.hbm, 10154, rfl⟩
abbrev main_v9227 : Ref sig .tc := ⟨.hbm, 10155, rfl⟩
abbrev main_v9228 : Ref sig .tc := ⟨.hbm, 10156, rfl⟩
abbrev main_v9229 : Ref sig .tc := ⟨.hbm, 10157, rfl⟩
abbrev main_v9230 : Ref sig .tc := ⟨.hbm, 10158, rfl⟩
abbrev main_v9231 : Ref sig .tc := ⟨.hbm, 10159, rfl⟩
abbrev main_v9232 : Ref sig .tc := ⟨.hbm, 10160, rfl⟩
abbrev main_v9233 : Ref sig .tc := ⟨.hbm, 10161, rfl⟩
abbrev main_v9234 : Ref sig .tc := ⟨.hbm, 10162, rfl⟩
abbrev main_v9235 : Ref sig .tc := ⟨.hbm, 10163, rfl⟩
abbrev main_v9236 : Ref sig .tc := ⟨.hbm, 10164, rfl⟩
abbrev main_v9237 : Ref sig .tc := ⟨.hbm, 10165, rfl⟩
abbrev main_v9238 : Ref sig .tc := ⟨.hbm, 10166, rfl⟩
abbrev main_v9239 : Ref sig .tc := ⟨.hbm, 10167, rfl⟩
abbrev main_v9240 : Ref sig .tc := ⟨.hbm, 10168, rfl⟩
abbrev main_cst_922 : Ref sig .tc := ⟨.hbm, 10169, rfl⟩
abbrev main_v9241 : Ref sig .tc := ⟨.hbm, 10170, rfl⟩
abbrev main_c_923 : Ref sig .tc := ⟨.hbm, 10171, rfl⟩
abbrev main_v9242 : Ref sig .tc := ⟨.hbm, 10172, rfl⟩
abbrev main_v9243 : Ref sig .tc := ⟨.hbm, 10173, rfl⟩
abbrev main_v9244 : Ref sig .tc := ⟨.hbm, 10174, rfl⟩
abbrev main_v9245 : Ref sig .tc := ⟨.hbm, 10175, rfl⟩
abbrev main_v9246 : Ref sig .tc := ⟨.hbm, 10176, rfl⟩
abbrev main_v9247 : Ref sig .tc := ⟨.hbm, 10177, rfl⟩
abbrev main_v9248 : Ref sig .tc := ⟨.hbm, 10178, rfl⟩
abbrev main_v9249 : Ref sig .tc := ⟨.hbm, 10179, rfl⟩
abbrev main_v9250 : Ref sig .tc := ⟨.hbm, 10180, rfl⟩
abbrev main_v9251 : Ref sig .tc := ⟨.hbm, 10181, rfl⟩
abbrev main_v9252 : Ref sig .tc := ⟨.hbm, 10182, rfl⟩
abbrev main_v9253 : Ref sig .tc := ⟨.hbm, 10183, rfl⟩
abbrev main_v9254 : Ref sig .tc := ⟨.hbm, 10184, rfl⟩
abbrev main_v9255 : Ref sig .tc := ⟨.hbm, 10185, rfl⟩
abbrev main_v9256 : Ref sig .tc := ⟨.hbm, 10186, rfl⟩
abbrev main_v9257 : Ref sig .tc := ⟨.hbm, 10187, rfl⟩
abbrev main_v9258 : Ref sig .tc := ⟨.hbm, 10188, rfl⟩
abbrev main_v9259 : Ref sig .tc := ⟨.hbm, 10189, rfl⟩
abbrev main_v9260 : Ref sig .tc := ⟨.hbm, 10190, rfl⟩
abbrev main_cst_924 : Ref sig .tc := ⟨.hbm, 10191, rfl⟩
abbrev main_v9261 : Ref sig .tc := ⟨.hbm, 10192, rfl⟩
abbrev main_c_925 : Ref sig .tc := ⟨.hbm, 10193, rfl⟩
abbrev main_v9262 : Ref sig .tc := ⟨.hbm, 10194, rfl⟩
abbrev main_v9263 : Ref sig .tc := ⟨.hbm, 10195, rfl⟩
abbrev main_v9264 : Ref sig .tc := ⟨.hbm, 10196, rfl⟩
abbrev main_v9265 : Ref sig .tc := ⟨.hbm, 10197, rfl⟩
abbrev main_v9266 : Ref sig .tc := ⟨.hbm, 10198, rfl⟩
abbrev main_v9267 : Ref sig .tc := ⟨.hbm, 10199, rfl⟩
abbrev main_v9268 : Ref sig .tc := ⟨.hbm, 10200, rfl⟩
abbrev main_v9269 : Ref sig .tc := ⟨.hbm, 10201, rfl⟩
abbrev main_v9270 : Ref sig .tc := ⟨.hbm, 10202, rfl⟩
abbrev main_v9271 : Ref sig .tc := ⟨.hbm, 10203, rfl⟩
abbrev main_v9272 : Ref sig .tc := ⟨.hbm, 10204, rfl⟩
abbrev main_v9273 : Ref sig .tc := ⟨.hbm, 10205, rfl⟩
abbrev main_v9274 : Ref sig .tc := ⟨.hbm, 10206, rfl⟩
abbrev main_v9275 : Ref sig .tc := ⟨.hbm, 10207, rfl⟩
abbrev main_v9276 : Ref sig .tc := ⟨.hbm, 10208, rfl⟩
abbrev main_v9277 : Ref sig .tc := ⟨.hbm, 10209, rfl⟩
abbrev main_v9278 : Ref sig .tc := ⟨.hbm, 10210, rfl⟩
abbrev main_v9279 : Ref sig .tc := ⟨.hbm, 10211, rfl⟩
abbrev main_v9280 : Ref sig .tc := ⟨.hbm, 10212, rfl⟩
abbrev main_cst_926 : Ref sig .tc := ⟨.hbm, 10213, rfl⟩
abbrev main_v9281 : Ref sig .tc := ⟨.hbm, 10214, rfl⟩
abbrev main_c_927 : Ref sig .tc := ⟨.hbm, 10215, rfl⟩
abbrev main_v9282 : Ref sig .tc := ⟨.hbm, 10216, rfl⟩
abbrev main_v9283 : Ref sig .tc := ⟨.hbm, 10217, rfl⟩
abbrev main_v9284 : Ref sig .tc := ⟨.hbm, 10218, rfl⟩
abbrev main_v9285 : Ref sig .tc := ⟨.hbm, 10219, rfl⟩
abbrev main_v9286 : Ref sig .tc := ⟨.hbm, 10220, rfl⟩
abbrev main_v9287 : Ref sig .tc := ⟨.hbm, 10221, rfl⟩
abbrev main_v9288 : Ref sig .tc := ⟨.hbm, 10222, rfl⟩
abbrev main_v9289 : Ref sig .tc := ⟨.hbm, 10223, rfl⟩
abbrev main_v9290 : Ref sig .tc := ⟨.hbm, 10224, rfl⟩
abbrev main_v9291 : Ref sig .tc := ⟨.hbm, 10225, rfl⟩
abbrev main_v9292 : Ref sig .tc := ⟨.hbm, 10226, rfl⟩
abbrev main_v9293 : Ref sig .tc := ⟨.hbm, 10227, rfl⟩
abbrev main_v9294 : Ref sig .tc := ⟨.hbm, 10228, rfl⟩
abbrev main_v9295 : Ref sig .tc := ⟨.hbm, 10229, rfl⟩
abbrev main_v9296 : Ref sig .tc := ⟨.hbm, 10230, rfl⟩
abbrev main_v9297 : Ref sig .tc := ⟨.hbm, 10231, rfl⟩
abbrev main_v9298 : Ref sig .tc := ⟨.hbm, 10232, rfl⟩
abbrev main_v9299 : Ref sig .tc := ⟨.hbm, 10233, rfl⟩
abbrev main_v9300 : Ref sig .tc := ⟨.hbm, 10234, rfl⟩
abbrev main_cst_928 : Ref sig .tc := ⟨.hbm, 10235, rfl⟩
abbrev main_v9301 : Ref sig .tc := ⟨.hbm, 10236, rfl⟩
abbrev main_c_929 : Ref sig .tc := ⟨.hbm, 10237, rfl⟩
abbrev main_v9302 : Ref sig .tc := ⟨.hbm, 10238, rfl⟩
abbrev main_v9303 : Ref sig .tc := ⟨.hbm, 10239, rfl⟩
abbrev main_v9304 : Ref sig .tc := ⟨.hbm, 10240, rfl⟩
abbrev main_v9305 : Ref sig .tc := ⟨.hbm, 10241, rfl⟩
abbrev main_v9306 : Ref sig .tc := ⟨.hbm, 10242, rfl⟩
abbrev main_v9307 : Ref sig .tc := ⟨.hbm, 10243, rfl⟩
abbrev main_v9308 : Ref sig .tc := ⟨.hbm, 10244, rfl⟩
abbrev main_v9309 : Ref sig .tc := ⟨.hbm, 10245, rfl⟩
abbrev main_v9310 : Ref sig .tc := ⟨.hbm, 10246, rfl⟩
abbrev main_v9311 : Ref sig .tc := ⟨.hbm, 10247, rfl⟩
abbrev main_v9312 : Ref sig .tc := ⟨.hbm, 10248, rfl⟩
abbrev main_v9313 : Ref sig .tc := ⟨.hbm, 10249, rfl⟩
abbrev main_v9314 : Ref sig .tc := ⟨.hbm, 10250, rfl⟩
abbrev main_v9315 : Ref sig .tc := ⟨.hbm, 10251, rfl⟩
abbrev main_v9316 : Ref sig .tc := ⟨.hbm, 10252, rfl⟩
abbrev main_v9317 : Ref sig .tc := ⟨.hbm, 10253, rfl⟩
abbrev main_v9318 : Ref sig .tc := ⟨.hbm, 10254, rfl⟩
abbrev main_v9319 : Ref sig .tc := ⟨.hbm, 10255, rfl⟩
abbrev main_v9320 : Ref sig .tc := ⟨.hbm, 10256, rfl⟩
abbrev main_cst_930 : Ref sig .tc := ⟨.hbm, 10257, rfl⟩
abbrev main_v9321 : Ref sig .tc := ⟨.hbm, 10258, rfl⟩
abbrev main_c_931 : Ref sig .tc := ⟨.hbm, 10259, rfl⟩
abbrev main_v9322 : Ref sig .tc := ⟨.hbm, 10260, rfl⟩
abbrev main_v9323 : Ref sig .tc := ⟨.hbm, 10261, rfl⟩
abbrev main_v9324 : Ref sig .tc := ⟨.hbm, 10262, rfl⟩
abbrev main_v9325 : Ref sig .tc := ⟨.hbm, 10263, rfl⟩
abbrev main_v9326 : Ref sig .tc := ⟨.hbm, 10264, rfl⟩
abbrev main_v9327 : Ref sig .tc := ⟨.hbm, 10265, rfl⟩
abbrev main_v9328 : Ref sig .tc := ⟨.hbm, 10266, rfl⟩
abbrev main_v9329 : Ref sig .tc := ⟨.hbm, 10267, rfl⟩
abbrev main_v9330 : Ref sig .tc := ⟨.hbm, 10268, rfl⟩
abbrev main_v9331 : Ref sig .tc := ⟨.hbm, 10269, rfl⟩
abbrev main_v9332 : Ref sig .tc := ⟨.hbm, 10270, rfl⟩
abbrev main_v9333 : Ref sig .tc := ⟨.hbm, 10271, rfl⟩
abbrev main_v9334 : Ref sig .tc := ⟨.hbm, 10272, rfl⟩
abbrev main_v9335 : Ref sig .tc := ⟨.hbm, 10273, rfl⟩
abbrev main_v9336 : Ref sig .tc := ⟨.hbm, 10274, rfl⟩
abbrev main_v9337 : Ref sig .tc := ⟨.hbm, 10275, rfl⟩
abbrev main_v9338 : Ref sig .tc := ⟨.hbm, 10276, rfl⟩
abbrev main_v9339 : Ref sig .tc := ⟨.hbm, 10277, rfl⟩
abbrev main_v9340 : Ref sig .tc := ⟨.hbm, 10278, rfl⟩
abbrev main_cst_932 : Ref sig .tc := ⟨.hbm, 10279, rfl⟩
abbrev main_v9341 : Ref sig .tc := ⟨.hbm, 10280, rfl⟩
abbrev main_c_933 : Ref sig .tc := ⟨.hbm, 10281, rfl⟩
abbrev main_v9342 : Ref sig .tc := ⟨.hbm, 10282, rfl⟩
abbrev main_v9343 : Ref sig .tc := ⟨.hbm, 10283, rfl⟩
abbrev main_v9344 : Ref sig .tc := ⟨.hbm, 10284, rfl⟩
abbrev main_v9345 : Ref sig .tc := ⟨.hbm, 10285, rfl⟩
abbrev main_v9346 : Ref sig .tc := ⟨.hbm, 10286, rfl⟩
abbrev main_v9347 : Ref sig .tc := ⟨.hbm, 10287, rfl⟩
abbrev main_v9348 : Ref sig .tc := ⟨.hbm, 10288, rfl⟩
abbrev main_v9349 : Ref sig .tc := ⟨.hbm, 10289, rfl⟩
abbrev main_v9350 : Ref sig .tc := ⟨.hbm, 10290, rfl⟩
abbrev main_v9351 : Ref sig .tc := ⟨.hbm, 10291, rfl⟩
abbrev main_v9352 : Ref sig .tc := ⟨.hbm, 10292, rfl⟩
abbrev main_v9353 : Ref sig .tc := ⟨.hbm, 10293, rfl⟩
abbrev main_v9354 : Ref sig .tc := ⟨.hbm, 10294, rfl⟩
abbrev main_v9355 : Ref sig .tc := ⟨.hbm, 10295, rfl⟩
abbrev main_v9356 : Ref sig .tc := ⟨.hbm, 10296, rfl⟩
abbrev main_v9357 : Ref sig .tc := ⟨.hbm, 10297, rfl⟩
abbrev main_v9358 : Ref sig .tc := ⟨.hbm, 10298, rfl⟩
abbrev main_v9359 : Ref sig .tc := ⟨.hbm, 10299, rfl⟩
abbrev main_v9360 : Ref sig .tc := ⟨.hbm, 10300, rfl⟩
abbrev main_cst_934 : Ref sig .tc := ⟨.hbm, 10301, rfl⟩
abbrev main_v9361 : Ref sig .tc := ⟨.hbm, 10302, rfl⟩
abbrev main_c_935 : Ref sig .tc := ⟨.hbm, 10303, rfl⟩
abbrev main_v9362 : Ref sig .tc := ⟨.hbm, 10304, rfl⟩
abbrev main_v9363 : Ref sig .tc := ⟨.hbm, 10305, rfl⟩
abbrev main_v9364 : Ref sig .tc := ⟨.hbm, 10306, rfl⟩
abbrev main_v9365 : Ref sig .tc := ⟨.hbm, 10307, rfl⟩
abbrev main_v9366 : Ref sig .tc := ⟨.hbm, 10308, rfl⟩
abbrev main_v9367 : Ref sig .tc := ⟨.hbm, 10309, rfl⟩
abbrev main_v9368 : Ref sig .tc := ⟨.hbm, 10310, rfl⟩
abbrev main_v9369 : Ref sig .tc := ⟨.hbm, 10311, rfl⟩
abbrev main_v9370 : Ref sig .tc := ⟨.hbm, 10312, rfl⟩
abbrev main_v9371 : Ref sig .tc := ⟨.hbm, 10313, rfl⟩
abbrev main_v9372 : Ref sig .tc := ⟨.hbm, 10314, rfl⟩
abbrev main_v9373 : Ref sig .tc := ⟨.hbm, 10315, rfl⟩
abbrev main_v9374 : Ref sig .tc := ⟨.hbm, 10316, rfl⟩
abbrev main_v9375 : Ref sig .tc := ⟨.hbm, 10317, rfl⟩
abbrev main_v9376 : Ref sig .tc := ⟨.hbm, 10318, rfl⟩
abbrev main_v9377 : Ref sig .tc := ⟨.hbm, 10319, rfl⟩
abbrev main_v9378 : Ref sig .tc := ⟨.hbm, 10320, rfl⟩
abbrev main_v9379 : Ref sig .tc := ⟨.hbm, 10321, rfl⟩
abbrev main_v9380 : Ref sig .tc := ⟨.hbm, 10322, rfl⟩
abbrev main_cst_936 : Ref sig .tc := ⟨.hbm, 10323, rfl⟩
abbrev main_v9381 : Ref sig .tc := ⟨.hbm, 10324, rfl⟩
abbrev main_c_937 : Ref sig .tc := ⟨.hbm, 10325, rfl⟩
abbrev main_v9382 : Ref sig .tc := ⟨.hbm, 10326, rfl⟩
abbrev main_v9383 : Ref sig .tc := ⟨.hbm, 10327, rfl⟩
abbrev main_v9384 : Ref sig .tc := ⟨.hbm, 10328, rfl⟩
abbrev main_v9385 : Ref sig .tc := ⟨.hbm, 10329, rfl⟩
abbrev main_v9386 : Ref sig .tc := ⟨.hbm, 10330, rfl⟩
abbrev main_v9387 : Ref sig .tc := ⟨.hbm, 10331, rfl⟩
abbrev main_v9388 : Ref sig .tc := ⟨.hbm, 10332, rfl⟩
abbrev main_v9389 : Ref sig .tc := ⟨.hbm, 10333, rfl⟩
abbrev main_v9390 : Ref sig .tc := ⟨.hbm, 10334, rfl⟩
abbrev main_v9391 : Ref sig .tc := ⟨.hbm, 10335, rfl⟩
abbrev main_v9392 : Ref sig .tc := ⟨.hbm, 10336, rfl⟩
abbrev main_v9393 : Ref sig .tc := ⟨.hbm, 10337, rfl⟩
abbrev main_v9394 : Ref sig .tc := ⟨.hbm, 10338, rfl⟩
abbrev main_v9395 : Ref sig .tc := ⟨.hbm, 10339, rfl⟩
abbrev main_v9396 : Ref sig .tc := ⟨.hbm, 10340, rfl⟩
abbrev main_v9397 : Ref sig .tc := ⟨.hbm, 10341, rfl⟩
abbrev main_v9398 : Ref sig .tc := ⟨.hbm, 10342, rfl⟩
abbrev main_v9399 : Ref sig .tc := ⟨.hbm, 10343, rfl⟩
abbrev main_v9400 : Ref sig .tc := ⟨.hbm, 10344, rfl⟩
abbrev main_cst_938 : Ref sig .tc := ⟨.hbm, 10345, rfl⟩
abbrev main_v9401 : Ref sig .tc := ⟨.hbm, 10346, rfl⟩
abbrev main_c_939 : Ref sig .tc := ⟨.hbm, 10347, rfl⟩
abbrev main_v9402 : Ref sig .tc := ⟨.hbm, 10348, rfl⟩
abbrev main_v9403 : Ref sig .tc := ⟨.hbm, 10349, rfl⟩
abbrev main_v9404 : Ref sig .tc := ⟨.hbm, 10350, rfl⟩
abbrev main_v9405 : Ref sig .tc := ⟨.hbm, 10351, rfl⟩
abbrev main_v9406 : Ref sig .tc := ⟨.hbm, 10352, rfl⟩
abbrev main_v9407 : Ref sig .tc := ⟨.hbm, 10353, rfl⟩
abbrev main_v9408 : Ref sig .tc := ⟨.hbm, 10354, rfl⟩
abbrev main_v9409 : Ref sig .tc := ⟨.hbm, 10355, rfl⟩
abbrev main_v9410 : Ref sig .tc := ⟨.hbm, 10356, rfl⟩
abbrev main_v9411 : Ref sig .tc := ⟨.hbm, 10357, rfl⟩
abbrev main_v9412 : Ref sig .tc := ⟨.hbm, 10358, rfl⟩
abbrev main_v9413 : Ref sig .tc := ⟨.hbm, 10359, rfl⟩
abbrev main_v9414 : Ref sig .tc := ⟨.hbm, 10360, rfl⟩
abbrev main_v9415 : Ref sig .tc := ⟨.hbm, 10361, rfl⟩
abbrev main_v9416 : Ref sig .tc := ⟨.hbm, 10362, rfl⟩
abbrev main_v9417 : Ref sig .tc := ⟨.hbm, 10363, rfl⟩
abbrev main_v9418 : Ref sig .tc := ⟨.hbm, 10364, rfl⟩
abbrev main_v9419 : Ref sig .tc := ⟨.hbm, 10365, rfl⟩
abbrev main_v9420 : Ref sig .tc := ⟨.hbm, 10366, rfl⟩
abbrev main_cst_940 : Ref sig .tc := ⟨.hbm, 10367, rfl⟩
abbrev main_v9421 : Ref sig .tc := ⟨.hbm, 10368, rfl⟩
abbrev main_c_941 : Ref sig .tc := ⟨.hbm, 10369, rfl⟩
abbrev main_v9422 : Ref sig .tc := ⟨.hbm, 10370, rfl⟩
abbrev main_v9423 : Ref sig .tc := ⟨.hbm, 10371, rfl⟩
abbrev main_v9424 : Ref sig .tc := ⟨.hbm, 10372, rfl⟩
abbrev main_v9425 : Ref sig .tc := ⟨.hbm, 10373, rfl⟩
abbrev main_v9426 : Ref sig .tc := ⟨.hbm, 10374, rfl⟩
abbrev main_v9427 : Ref sig .tc := ⟨.hbm, 10375, rfl⟩
abbrev main_v9428 : Ref sig .tc := ⟨.hbm, 10376, rfl⟩
abbrev main_v9429 : Ref sig .tc := ⟨.hbm, 10377, rfl⟩
abbrev main_v9430 : Ref sig .tc := ⟨.hbm, 10378, rfl⟩
abbrev main_v9431 : Ref sig .tc := ⟨.hbm, 10379, rfl⟩
abbrev main_v9432 : Ref sig .tc := ⟨.hbm, 10380, rfl⟩
abbrev main_v9433 : Ref sig .tc := ⟨.hbm, 10381, rfl⟩
abbrev main_v9434 : Ref sig .tc := ⟨.hbm, 10382, rfl⟩
abbrev main_v9435 : Ref sig .tc := ⟨.hbm, 10383, rfl⟩
abbrev main_v9436 : Ref sig .tc := ⟨.hbm, 10384, rfl⟩
abbrev main_v9437 : Ref sig .tc := ⟨.hbm, 10385, rfl⟩
abbrev main_v9438 : Ref sig .tc := ⟨.hbm, 10386, rfl⟩
abbrev main_v9439 : Ref sig .tc := ⟨.hbm, 10387, rfl⟩
abbrev main_v9440 : Ref sig .tc := ⟨.hbm, 10388, rfl⟩
abbrev main_cst_942 : Ref sig .tc := ⟨.hbm, 10389, rfl⟩
abbrev main_v9441 : Ref sig .tc := ⟨.hbm, 10390, rfl⟩
abbrev main_c_943 : Ref sig .tc := ⟨.hbm, 10391, rfl⟩
abbrev main_v9442 : Ref sig .tc := ⟨.hbm, 10392, rfl⟩
abbrev main_v9443 : Ref sig .tc := ⟨.hbm, 10393, rfl⟩
abbrev main_v9444 : Ref sig .tc := ⟨.hbm, 10394, rfl⟩
abbrev main_v9445 : Ref sig .tc := ⟨.hbm, 10395, rfl⟩
abbrev main_v9446 : Ref sig .tc := ⟨.hbm, 10396, rfl⟩
abbrev main_v9447 : Ref sig .tc := ⟨.hbm, 10397, rfl⟩
abbrev main_v9448 : Ref sig .tc := ⟨.hbm, 10398, rfl⟩
abbrev main_v9449 : Ref sig .tc := ⟨.hbm, 10399, rfl⟩
abbrev main_v9450 : Ref sig .tc := ⟨.hbm, 10400, rfl⟩
abbrev main_v9451 : Ref sig .tc := ⟨.hbm, 10401, rfl⟩
abbrev main_v9452 : Ref sig .tc := ⟨.hbm, 10402, rfl⟩
abbrev main_v9453 : Ref sig .tc := ⟨.hbm, 10403, rfl⟩
abbrev main_v9454 : Ref sig .tc := ⟨.hbm, 10404, rfl⟩
abbrev main_v9455 : Ref sig .tc := ⟨.hbm, 10405, rfl⟩
abbrev main_v9456 : Ref sig .tc := ⟨.hbm, 10406, rfl⟩
abbrev main_v9457 : Ref sig .tc := ⟨.hbm, 10407, rfl⟩
abbrev main_v9458 : Ref sig .tc := ⟨.hbm, 10408, rfl⟩
abbrev main_v9459 : Ref sig .tc := ⟨.hbm, 10409, rfl⟩
abbrev main_v9460 : Ref sig .tc := ⟨.hbm, 10410, rfl⟩
abbrev main_cst_944 : Ref sig .tc := ⟨.hbm, 10411, rfl⟩
abbrev main_v9461 : Ref sig .tc := ⟨.hbm, 10412, rfl⟩
abbrev main_c_945 : Ref sig .tc := ⟨.hbm, 10413, rfl⟩
abbrev main_v9462 : Ref sig .tc := ⟨.hbm, 10414, rfl⟩
abbrev main_v9463 : Ref sig .tc := ⟨.hbm, 10415, rfl⟩
abbrev main_v9464 : Ref sig .tc := ⟨.hbm, 10416, rfl⟩
abbrev main_v9465 : Ref sig .tc := ⟨.hbm, 10417, rfl⟩
abbrev main_v9466 : Ref sig .tc := ⟨.hbm, 10418, rfl⟩
abbrev main_v9467 : Ref sig .tc := ⟨.hbm, 10419, rfl⟩
abbrev main_v9468 : Ref sig .tc := ⟨.hbm, 10420, rfl⟩
abbrev main_v9469 : Ref sig .tc := ⟨.hbm, 10421, rfl⟩
abbrev main_v9470 : Ref sig .tc := ⟨.hbm, 10422, rfl⟩
abbrev main_v9471 : Ref sig .tc := ⟨.hbm, 10423, rfl⟩
abbrev main_v9472 : Ref sig .tc := ⟨.hbm, 10424, rfl⟩
abbrev main_v9473 : Ref sig .tc := ⟨.hbm, 10425, rfl⟩
abbrev main_v9474 : Ref sig .tc := ⟨.hbm, 10426, rfl⟩
abbrev main_v9475 : Ref sig .tc := ⟨.hbm, 10427, rfl⟩
abbrev main_v9476 : Ref sig .tc := ⟨.hbm, 10428, rfl⟩
abbrev main_v9477 : Ref sig .tc := ⟨.hbm, 10429, rfl⟩
abbrev main_v9478 : Ref sig .tc := ⟨.hbm, 10430, rfl⟩
abbrev main_v9479 : Ref sig .tc := ⟨.hbm, 10431, rfl⟩
abbrev main_v9480 : Ref sig .tc := ⟨.hbm, 10432, rfl⟩
abbrev main_cst_946 : Ref sig .tc := ⟨.hbm, 10433, rfl⟩
abbrev main_v9481 : Ref sig .tc := ⟨.hbm, 10434, rfl⟩
abbrev main_c_947 : Ref sig .tc := ⟨.hbm, 10435, rfl⟩
abbrev main_v9482 : Ref sig .tc := ⟨.hbm, 10436, rfl⟩
abbrev main_v9483 : Ref sig .tc := ⟨.hbm, 10437, rfl⟩
abbrev main_v9484 : Ref sig .tc := ⟨.hbm, 10438, rfl⟩
abbrev main_v9485 : Ref sig .tc := ⟨.hbm, 10439, rfl⟩
abbrev main_v9486 : Ref sig .tc := ⟨.hbm, 10440, rfl⟩
abbrev main_v9487 : Ref sig .tc := ⟨.hbm, 10441, rfl⟩
abbrev main_v9488 : Ref sig .tc := ⟨.hbm, 10442, rfl⟩
abbrev main_v9489 : Ref sig .tc := ⟨.hbm, 10443, rfl⟩
abbrev main_v9490 : Ref sig .tc := ⟨.hbm, 10444, rfl⟩
abbrev main_v9491 : Ref sig .tc := ⟨.hbm, 10445, rfl⟩
abbrev main_v9492 : Ref sig .tc := ⟨.hbm, 10446, rfl⟩
abbrev main_v9493 : Ref sig .tc := ⟨.hbm, 10447, rfl⟩
abbrev main_v9494 : Ref sig .tc := ⟨.hbm, 10448, rfl⟩
abbrev main_v9495 : Ref sig .tc := ⟨.hbm, 10449, rfl⟩
abbrev main_v9496 : Ref sig .tc := ⟨.hbm, 10450, rfl⟩
abbrev main_v9497 : Ref sig .tc := ⟨.hbm, 10451, rfl⟩
abbrev main_v9498 : Ref sig .tc := ⟨.hbm, 10452, rfl⟩
abbrev main_v9499 : Ref sig .tc := ⟨.hbm, 10453, rfl⟩
abbrev main_v9500 : Ref sig .tc := ⟨.hbm, 10454, rfl⟩
abbrev main_cst_948 : Ref sig .tc := ⟨.hbm, 10455, rfl⟩
abbrev main_v9501 : Ref sig .tc := ⟨.hbm, 10456, rfl⟩
abbrev main_c_949 : Ref sig .tc := ⟨.hbm, 10457, rfl⟩
abbrev main_v9502 : Ref sig .tc := ⟨.hbm, 10458, rfl⟩
abbrev main_v9503 : Ref sig .tc := ⟨.hbm, 10459, rfl⟩
abbrev main_v9504 : Ref sig .tc := ⟨.hbm, 10460, rfl⟩
abbrev main_v9505 : Ref sig .tc := ⟨.hbm, 10461, rfl⟩
abbrev main_v9506 : Ref sig .tc := ⟨.hbm, 10462, rfl⟩
abbrev main_v9507 : Ref sig .tc := ⟨.hbm, 10463, rfl⟩
abbrev main_v9508 : Ref sig .tc := ⟨.hbm, 10464, rfl⟩
abbrev main_v9509 : Ref sig .tc := ⟨.hbm, 10465, rfl⟩
abbrev main_v9510 : Ref sig .tc := ⟨.hbm, 10466, rfl⟩
abbrev main_v9511 : Ref sig .tc := ⟨.hbm, 10467, rfl⟩
abbrev main_v9512 : Ref sig .tc := ⟨.hbm, 10468, rfl⟩
abbrev main_v9513 : Ref sig .tc := ⟨.hbm, 10469, rfl⟩
abbrev main_v9514 : Ref sig .tc := ⟨.hbm, 10470, rfl⟩
abbrev main_v9515 : Ref sig .tc := ⟨.hbm, 10471, rfl⟩
abbrev main_v9516 : Ref sig .tc := ⟨.hbm, 10472, rfl⟩
abbrev main_v9517 : Ref sig .tc := ⟨.hbm, 10473, rfl⟩
abbrev main_v9518 : Ref sig .tc := ⟨.hbm, 10474, rfl⟩
abbrev main_v9519 : Ref sig .tc := ⟨.hbm, 10475, rfl⟩
abbrev main_v9520 : Ref sig .tc := ⟨.hbm, 10476, rfl⟩
abbrev main_cst_950 : Ref sig .tc := ⟨.hbm, 10477, rfl⟩
abbrev main_v9521 : Ref sig .tc := ⟨.hbm, 10478, rfl⟩
abbrev main_c_951 : Ref sig .tc := ⟨.hbm, 10479, rfl⟩
abbrev main_v9522 : Ref sig .tc := ⟨.hbm, 10480, rfl⟩
abbrev main_v9523 : Ref sig .tc := ⟨.hbm, 10481, rfl⟩
abbrev main_v9524 : Ref sig .tc := ⟨.hbm, 10482, rfl⟩
abbrev main_v9525 : Ref sig .tc := ⟨.hbm, 10483, rfl⟩
abbrev main_v9526 : Ref sig .tc := ⟨.hbm, 10484, rfl⟩
abbrev main_v9527 : Ref sig .tc := ⟨.hbm, 10485, rfl⟩
abbrev main_v9528 : Ref sig .tc := ⟨.hbm, 10486, rfl⟩
abbrev main_v9529 : Ref sig .tc := ⟨.hbm, 10487, rfl⟩
abbrev main_v9530 : Ref sig .tc := ⟨.hbm, 10488, rfl⟩
abbrev main_v9531 : Ref sig .tc := ⟨.hbm, 10489, rfl⟩
abbrev main_v9532 : Ref sig .tc := ⟨.hbm, 10490, rfl⟩
abbrev main_v9533 : Ref sig .tc := ⟨.hbm, 10491, rfl⟩
abbrev main_v9534 : Ref sig .tc := ⟨.hbm, 10492, rfl⟩
abbrev main_v9535 : Ref sig .tc := ⟨.hbm, 10493, rfl⟩
abbrev main_v9536 : Ref sig .tc := ⟨.hbm, 10494, rfl⟩
abbrev main_v9537 : Ref sig .tc := ⟨.hbm, 10495, rfl⟩
abbrev main_v9538 : Ref sig .tc := ⟨.hbm, 10496, rfl⟩
abbrev main_v9539 : Ref sig .tc := ⟨.hbm, 10497, rfl⟩
abbrev main_v9540 : Ref sig .tc := ⟨.hbm, 10498, rfl⟩
abbrev main_cst_952 : Ref sig .tc := ⟨.hbm, 10499, rfl⟩
abbrev main_v9541 : Ref sig .tc := ⟨.hbm, 10500, rfl⟩
abbrev main_c_953 : Ref sig .tc := ⟨.hbm, 10501, rfl⟩
abbrev main_v9542 : Ref sig .tc := ⟨.hbm, 10502, rfl⟩
abbrev main_v9543 : Ref sig .tc := ⟨.hbm, 10503, rfl⟩
abbrev main_v9544 : Ref sig .tc := ⟨.hbm, 10504, rfl⟩
abbrev main_v9545 : Ref sig .tc := ⟨.hbm, 10505, rfl⟩
abbrev main_v9546 : Ref sig .tc := ⟨.hbm, 10506, rfl⟩
abbrev main_v9547 : Ref sig .tc := ⟨.hbm, 10507, rfl⟩
abbrev main_v9548 : Ref sig .tc := ⟨.hbm, 10508, rfl⟩
abbrev main_v9549 : Ref sig .tc := ⟨.hbm, 10509, rfl⟩
abbrev main_v9550 : Ref sig .tc := ⟨.hbm, 10510, rfl⟩
abbrev main_v9551 : Ref sig .tc := ⟨.hbm, 10511, rfl⟩
abbrev main_v9552 : Ref sig .tc := ⟨.hbm, 10512, rfl⟩
abbrev main_v9553 : Ref sig .tc := ⟨.hbm, 10513, rfl⟩
abbrev main_v9554 : Ref sig .tc := ⟨.hbm, 10514, rfl⟩
abbrev main_v9555 : Ref sig .tc := ⟨.hbm, 10515, rfl⟩
abbrev main_v9556 : Ref sig .tc := ⟨.hbm, 10516, rfl⟩
abbrev main_v9557 : Ref sig .tc := ⟨.hbm, 10517, rfl⟩
abbrev main_v9558 : Ref sig .tc := ⟨.hbm, 10518, rfl⟩
abbrev main_v9559 : Ref sig .tc := ⟨.hbm, 10519, rfl⟩
abbrev main_v9560 : Ref sig .tc := ⟨.hbm, 10520, rfl⟩
abbrev main_cst_954 : Ref sig .tc := ⟨.hbm, 10521, rfl⟩
abbrev main_v9561 : Ref sig .tc := ⟨.hbm, 10522, rfl⟩
abbrev main_c_955 : Ref sig .tc := ⟨.hbm, 10523, rfl⟩
abbrev main_v9562 : Ref sig .tc := ⟨.hbm, 10524, rfl⟩
abbrev main_v9563 : Ref sig .tc := ⟨.hbm, 10525, rfl⟩
abbrev main_v9564 : Ref sig .tc := ⟨.hbm, 10526, rfl⟩
abbrev main_v9565 : Ref sig .tc := ⟨.hbm, 10527, rfl⟩
abbrev main_v9566 : Ref sig .tc := ⟨.hbm, 10528, rfl⟩
abbrev main_v9567 : Ref sig .tc := ⟨.hbm, 10529, rfl⟩
abbrev main_v9568 : Ref sig .tc := ⟨.hbm, 10530, rfl⟩
abbrev main_v9569 : Ref sig .tc := ⟨.hbm, 10531, rfl⟩
abbrev main_v9570 : Ref sig .tc := ⟨.hbm, 10532, rfl⟩
abbrev main_v9571 : Ref sig .tc := ⟨.hbm, 10533, rfl⟩
abbrev main_v9572 : Ref sig .tc := ⟨.hbm, 10534, rfl⟩
abbrev main_v9573 : Ref sig .tc := ⟨.hbm, 10535, rfl⟩
abbrev main_v9574 : Ref sig .tc := ⟨.hbm, 10536, rfl⟩
abbrev main_v9575 : Ref sig .tc := ⟨.hbm, 10537, rfl⟩
abbrev main_v9576 : Ref sig .tc := ⟨.hbm, 10538, rfl⟩
abbrev main_v9577 : Ref sig .tc := ⟨.hbm, 10539, rfl⟩
abbrev main_v9578 : Ref sig .tc := ⟨.hbm, 10540, rfl⟩
abbrev main_v9579 : Ref sig .tc := ⟨.hbm, 10541, rfl⟩
abbrev main_v9580 : Ref sig .tc := ⟨.hbm, 10542, rfl⟩
abbrev main_cst_956 : Ref sig .tc := ⟨.hbm, 10543, rfl⟩
abbrev main_v9581 : Ref sig .tc := ⟨.hbm, 10544, rfl⟩
abbrev main_c_957 : Ref sig .tc := ⟨.hbm, 10545, rfl⟩
abbrev main_v9582 : Ref sig .tc := ⟨.hbm, 10546, rfl⟩
abbrev main_v9583 : Ref sig .tc := ⟨.hbm, 10547, rfl⟩
abbrev main_v9584 : Ref sig .tc := ⟨.hbm, 10548, rfl⟩
abbrev main_v9585 : Ref sig .tc := ⟨.hbm, 10549, rfl⟩
abbrev main_v9586 : Ref sig .tc := ⟨.hbm, 10550, rfl⟩
abbrev main_v9587 : Ref sig .tc := ⟨.hbm, 10551, rfl⟩
abbrev main_v9588 : Ref sig .tc := ⟨.hbm, 10552, rfl⟩
abbrev main_v9589 : Ref sig .tc := ⟨.hbm, 10553, rfl⟩
abbrev main_v9590 : Ref sig .tc := ⟨.hbm, 10554, rfl⟩
abbrev main_v9591 : Ref sig .tc := ⟨.hbm, 10555, rfl⟩
abbrev main_v9592 : Ref sig .tc := ⟨.hbm, 10556, rfl⟩
abbrev main_v9593 : Ref sig .tc := ⟨.hbm, 10557, rfl⟩
abbrev main_v9594 : Ref sig .tc := ⟨.hbm, 10558, rfl⟩
abbrev main_v9595 : Ref sig .tc := ⟨.hbm, 10559, rfl⟩
abbrev main_v9596 : Ref sig .tc := ⟨.hbm, 10560, rfl⟩
abbrev main_v9597 : Ref sig .tc := ⟨.hbm, 10561, rfl⟩
abbrev main_v9598 : Ref sig .tc := ⟨.hbm, 10562, rfl⟩
abbrev main_v9599 : Ref sig .tc := ⟨.hbm, 10563, rfl⟩
abbrev main_v9600 : Ref sig .tc := ⟨.hbm, 10564, rfl⟩
abbrev main_cst_958 : Ref sig .tc := ⟨.hbm, 10565, rfl⟩
abbrev main_v9601 : Ref sig .tc := ⟨.hbm, 10566, rfl⟩
abbrev main_c_959 : Ref sig .tc := ⟨.hbm, 10567, rfl⟩
abbrev main_v9602 : Ref sig .tc := ⟨.hbm, 10568, rfl⟩
abbrev main_v9603 : Ref sig .tc := ⟨.hbm, 10569, rfl⟩
abbrev main_v9604 : Ref sig .tc := ⟨.hbm, 10570, rfl⟩
abbrev main_v9605 : Ref sig .tc := ⟨.hbm, 10571, rfl⟩
abbrev main_v9606 : Ref sig .tc := ⟨.hbm, 10572, rfl⟩
abbrev main_v9607 : Ref sig .tc := ⟨.hbm, 10573, rfl⟩
abbrev main_v9608 : Ref sig .tc := ⟨.hbm, 10574, rfl⟩
abbrev main_v9609 : Ref sig .tc := ⟨.hbm, 10575, rfl⟩
abbrev main_v9610 : Ref sig .tc := ⟨.hbm, 10576, rfl⟩
abbrev main_v9611 : Ref sig .tc := ⟨.hbm, 10577, rfl⟩
abbrev main_v9612 : Ref sig .tc := ⟨.hbm, 10578, rfl⟩
abbrev main_v9613 : Ref sig .tc := ⟨.hbm, 10579, rfl⟩
abbrev main_v9614 : Ref sig .tc := ⟨.hbm, 10580, rfl⟩
abbrev main_v9615 : Ref sig .tc := ⟨.hbm, 10581, rfl⟩
abbrev main_v9616 : Ref sig .tc := ⟨.hbm, 10582, rfl⟩
abbrev main_v9617 : Ref sig .tc := ⟨.hbm, 10583, rfl⟩
abbrev main_v9618 : Ref sig .tc := ⟨.hbm, 10584, rfl⟩
abbrev main_v9619 : Ref sig .tc := ⟨.hbm, 10585, rfl⟩
abbrev main_v9620 : Ref sig .tc := ⟨.hbm, 10586, rfl⟩
abbrev main_cst_960 : Ref sig .tc := ⟨.hbm, 10587, rfl⟩
abbrev main_v9621 : Ref sig .tc := ⟨.hbm, 10588, rfl⟩
abbrev main_c_961 : Ref sig .tc := ⟨.hbm, 10589, rfl⟩
abbrev main_v9622 : Ref sig .tc := ⟨.hbm, 10590, rfl⟩
abbrev main_v9623 : Ref sig .tc := ⟨.hbm, 10591, rfl⟩
abbrev main_v9624 : Ref sig .tc := ⟨.hbm, 10592, rfl⟩
abbrev main_v9625 : Ref sig .tc := ⟨.hbm, 10593, rfl⟩
abbrev main_v9626 : Ref sig .tc := ⟨.hbm, 10594, rfl⟩
abbrev main_v9627 : Ref sig .tc := ⟨.hbm, 10595, rfl⟩
abbrev main_v9628 : Ref sig .tc := ⟨.hbm, 10596, rfl⟩
abbrev main_v9629 : Ref sig .tc := ⟨.hbm, 10597, rfl⟩
abbrev main_v9630 : Ref sig .tc := ⟨.hbm, 10598, rfl⟩
abbrev main_v9631 : Ref sig .tc := ⟨.hbm, 10599, rfl⟩
abbrev main_v9632 : Ref sig .tc := ⟨.hbm, 10600, rfl⟩
abbrev main_v9633 : Ref sig .tc := ⟨.hbm, 10601, rfl⟩
abbrev main_v9634 : Ref sig .tc := ⟨.hbm, 10602, rfl⟩
abbrev main_v9635 : Ref sig .tc := ⟨.hbm, 10603, rfl⟩
abbrev main_v9636 : Ref sig .tc := ⟨.hbm, 10604, rfl⟩
abbrev main_v9637 : Ref sig .tc := ⟨.hbm, 10605, rfl⟩
abbrev main_v9638 : Ref sig .tc := ⟨.hbm, 10606, rfl⟩
abbrev main_v9639 : Ref sig .tc := ⟨.hbm, 10607, rfl⟩
abbrev main_v9640 : Ref sig .tc := ⟨.hbm, 10608, rfl⟩
abbrev main_cst_962 : Ref sig .tc := ⟨.hbm, 10609, rfl⟩
abbrev main_v9641 : Ref sig .tc := ⟨.hbm, 10610, rfl⟩
abbrev main_c_963 : Ref sig .tc := ⟨.hbm, 10611, rfl⟩
abbrev main_v9642 : Ref sig .tc := ⟨.hbm, 10612, rfl⟩
abbrev main_v9643 : Ref sig .tc := ⟨.hbm, 10613, rfl⟩
abbrev main_v9644 : Ref sig .tc := ⟨.hbm, 10614, rfl⟩
abbrev main_v9645 : Ref sig .tc := ⟨.hbm, 10615, rfl⟩
abbrev main_v9646 : Ref sig .tc := ⟨.hbm, 10616, rfl⟩
abbrev main_v9647 : Ref sig .tc := ⟨.hbm, 10617, rfl⟩
abbrev main_v9648 : Ref sig .tc := ⟨.hbm, 10618, rfl⟩
abbrev main_v9649 : Ref sig .tc := ⟨.hbm, 10619, rfl⟩
abbrev main_v9650 : Ref sig .tc := ⟨.hbm, 10620, rfl⟩
abbrev main_v9651 : Ref sig .tc := ⟨.hbm, 10621, rfl⟩
abbrev main_v9652 : Ref sig .tc := ⟨.hbm, 10622, rfl⟩
abbrev main_v9653 : Ref sig .tc := ⟨.hbm, 10623, rfl⟩
abbrev main_v9654 : Ref sig .tc := ⟨.hbm, 10624, rfl⟩
abbrev main_v9655 : Ref sig .tc := ⟨.hbm, 10625, rfl⟩
abbrev main_v9656 : Ref sig .tc := ⟨.hbm, 10626, rfl⟩
abbrev main_v9657 : Ref sig .tc := ⟨.hbm, 10627, rfl⟩
abbrev main_v9658 : Ref sig .tc := ⟨.hbm, 10628, rfl⟩
abbrev main_v9659 : Ref sig .tc := ⟨.hbm, 10629, rfl⟩
abbrev main_v9660 : Ref sig .tc := ⟨.hbm, 10630, rfl⟩
abbrev main_cst_964 : Ref sig .tc := ⟨.hbm, 10631, rfl⟩
abbrev main_v9661 : Ref sig .tc := ⟨.hbm, 10632, rfl⟩
abbrev main_c_965 : Ref sig .tc := ⟨.hbm, 10633, rfl⟩
abbrev main_v9662 : Ref sig .tc := ⟨.hbm, 10634, rfl⟩
abbrev main_v9663 : Ref sig .tc := ⟨.hbm, 10635, rfl⟩
abbrev main_v9664 : Ref sig .tc := ⟨.hbm, 10636, rfl⟩
abbrev main_v9665 : Ref sig .tc := ⟨.hbm, 10637, rfl⟩
abbrev main_v9666 : Ref sig .tc := ⟨.hbm, 10638, rfl⟩
abbrev main_v9667 : Ref sig .tc := ⟨.hbm, 10639, rfl⟩
abbrev main_v9668 : Ref sig .tc := ⟨.hbm, 10640, rfl⟩
abbrev main_v9669 : Ref sig .tc := ⟨.hbm, 10641, rfl⟩
abbrev main_v9670 : Ref sig .tc := ⟨.hbm, 10642, rfl⟩
abbrev main_v9671 : Ref sig .tc := ⟨.hbm, 10643, rfl⟩
abbrev main_v9672 : Ref sig .tc := ⟨.hbm, 10644, rfl⟩
abbrev main_v9673 : Ref sig .tc := ⟨.hbm, 10645, rfl⟩
abbrev main_v9674 : Ref sig .tc := ⟨.hbm, 10646, rfl⟩
abbrev main_v9675 : Ref sig .tc := ⟨.hbm, 10647, rfl⟩
abbrev main_v9676 : Ref sig .tc := ⟨.hbm, 10648, rfl⟩
abbrev main_v9677 : Ref sig .tc := ⟨.hbm, 10649, rfl⟩
abbrev main_v9678 : Ref sig .tc := ⟨.hbm, 10650, rfl⟩
abbrev main_v9679 : Ref sig .tc := ⟨.hbm, 10651, rfl⟩
abbrev main_v9680 : Ref sig .tc := ⟨.hbm, 10652, rfl⟩
abbrev main_cst_966 : Ref sig .tc := ⟨.hbm, 10653, rfl⟩
abbrev main_v9681 : Ref sig .tc := ⟨.hbm, 10654, rfl⟩
abbrev main_c_967 : Ref sig .tc := ⟨.hbm, 10655, rfl⟩
abbrev main_v9682 : Ref sig .tc := ⟨.hbm, 10656, rfl⟩
abbrev main_v9683 : Ref sig .tc := ⟨.hbm, 10657, rfl⟩
abbrev main_v9684 : Ref sig .tc := ⟨.hbm, 10658, rfl⟩
abbrev main_v9685 : Ref sig .tc := ⟨.hbm, 10659, rfl⟩
abbrev main_v9686 : Ref sig .tc := ⟨.hbm, 10660, rfl⟩
abbrev main_v9687 : Ref sig .tc := ⟨.hbm, 10661, rfl⟩
abbrev main_v9688 : Ref sig .tc := ⟨.hbm, 10662, rfl⟩
abbrev main_v9689 : Ref sig .tc := ⟨.hbm, 10663, rfl⟩
abbrev main_v9690 : Ref sig .tc := ⟨.hbm, 10664, rfl⟩
abbrev main_v9691 : Ref sig .tc := ⟨.hbm, 10665, rfl⟩
abbrev main_v9692 : Ref sig .tc := ⟨.hbm, 10666, rfl⟩
abbrev main_v9693 : Ref sig .tc := ⟨.hbm, 10667, rfl⟩
abbrev main_v9694 : Ref sig .tc := ⟨.hbm, 10668, rfl⟩
abbrev main_v9695 : Ref sig .tc := ⟨.hbm, 10669, rfl⟩
abbrev main_v9696 : Ref sig .tc := ⟨.hbm, 10670, rfl⟩
abbrev main_v9697 : Ref sig .tc := ⟨.hbm, 10671, rfl⟩
abbrev main_v9698 : Ref sig .tc := ⟨.hbm, 10672, rfl⟩
abbrev main_v9699 : Ref sig .tc := ⟨.hbm, 10673, rfl⟩
abbrev main_v9700 : Ref sig .tc := ⟨.hbm, 10674, rfl⟩
abbrev main_cst_968 : Ref sig .tc := ⟨.hbm, 10675, rfl⟩
abbrev main_v9701 : Ref sig .tc := ⟨.hbm, 10676, rfl⟩
abbrev main_c_969 : Ref sig .tc := ⟨.hbm, 10677, rfl⟩
abbrev main_v9702 : Ref sig .tc := ⟨.hbm, 10678, rfl⟩
abbrev main_v9703 : Ref sig .tc := ⟨.hbm, 10679, rfl⟩
abbrev main_v9704 : Ref sig .tc := ⟨.hbm, 10680, rfl⟩
abbrev main_v9705 : Ref sig .tc := ⟨.hbm, 10681, rfl⟩
abbrev main_v9706 : Ref sig .tc := ⟨.hbm, 10682, rfl⟩
abbrev main_v9707 : Ref sig .tc := ⟨.hbm, 10683, rfl⟩
abbrev main_v9708 : Ref sig .tc := ⟨.hbm, 10684, rfl⟩
abbrev main_v9709 : Ref sig .tc := ⟨.hbm, 10685, rfl⟩
abbrev main_v9710 : Ref sig .tc := ⟨.hbm, 10686, rfl⟩
abbrev main_v9711 : Ref sig .tc := ⟨.hbm, 10687, rfl⟩
abbrev main_v9712 : Ref sig .tc := ⟨.hbm, 10688, rfl⟩
abbrev main_v9713 : Ref sig .tc := ⟨.hbm, 10689, rfl⟩
abbrev main_v9714 : Ref sig .tc := ⟨.hbm, 10690, rfl⟩
abbrev main_v9715 : Ref sig .tc := ⟨.hbm, 10691, rfl⟩
abbrev main_v9716 : Ref sig .tc := ⟨.hbm, 10692, rfl⟩
abbrev main_v9717 : Ref sig .tc := ⟨.hbm, 10693, rfl⟩
abbrev main_v9718 : Ref sig .tc := ⟨.hbm, 10694, rfl⟩
abbrev main_v9719 : Ref sig .tc := ⟨.hbm, 10695, rfl⟩
abbrev main_v9720 : Ref sig .tc := ⟨.hbm, 10696, rfl⟩
abbrev main_cst_970 : Ref sig .tc := ⟨.hbm, 10697, rfl⟩
abbrev main_v9721 : Ref sig .tc := ⟨.hbm, 10698, rfl⟩
abbrev main_c_971 : Ref sig .tc := ⟨.hbm, 10699, rfl⟩
abbrev main_v9722 : Ref sig .tc := ⟨.hbm, 10700, rfl⟩
abbrev main_v9723 : Ref sig .tc := ⟨.hbm, 10701, rfl⟩
abbrev main_v9724 : Ref sig .tc := ⟨.hbm, 10702, rfl⟩
abbrev main_v9725 : Ref sig .tc := ⟨.hbm, 10703, rfl⟩
abbrev main_v9726 : Ref sig .tc := ⟨.hbm, 10704, rfl⟩
abbrev main_v9727 : Ref sig .tc := ⟨.hbm, 10705, rfl⟩
abbrev main_v9728 : Ref sig .tc := ⟨.hbm, 10706, rfl⟩
abbrev main_v9729 : Ref sig .tc := ⟨.hbm, 10707, rfl⟩
abbrev main_v9730 : Ref sig .tc := ⟨.hbm, 10708, rfl⟩
abbrev main_v9731 : Ref sig .tc := ⟨.hbm, 10709, rfl⟩
abbrev main_v9732 : Ref sig .tc := ⟨.hbm, 10710, rfl⟩
abbrev main_v9733 : Ref sig .tc := ⟨.hbm, 10711, rfl⟩
abbrev main_v9734 : Ref sig .tc := ⟨.hbm, 10712, rfl⟩
abbrev main_v9735 : Ref sig .tc := ⟨.hbm, 10713, rfl⟩
abbrev main_v9736 : Ref sig .tc := ⟨.hbm, 10714, rfl⟩
abbrev main_v9737 : Ref sig .tc := ⟨.hbm, 10715, rfl⟩
abbrev main_v9738 : Ref sig .tc := ⟨.hbm, 10716, rfl⟩
abbrev main_v9739 : Ref sig .tc := ⟨.hbm, 10717, rfl⟩
abbrev main_v9740 : Ref sig .tc := ⟨.hbm, 10718, rfl⟩
abbrev main_cst_972 : Ref sig .tc := ⟨.hbm, 10719, rfl⟩
abbrev main_v9741 : Ref sig .tc := ⟨.hbm, 10720, rfl⟩
abbrev main_c_973 : Ref sig .tc := ⟨.hbm, 10721, rfl⟩
abbrev main_v9742 : Ref sig .tc := ⟨.hbm, 10722, rfl⟩
abbrev main_v9743 : Ref sig .tc := ⟨.hbm, 10723, rfl⟩
abbrev main_v9744 : Ref sig .tc := ⟨.hbm, 10724, rfl⟩
abbrev main_v9745 : Ref sig .tc := ⟨.hbm, 10725, rfl⟩
abbrev main_v9746 : Ref sig .tc := ⟨.hbm, 10726, rfl⟩
abbrev main_v9747 : Ref sig .tc := ⟨.hbm, 10727, rfl⟩
abbrev main_v9748 : Ref sig .tc := ⟨.hbm, 10728, rfl⟩
abbrev main_v9749 : Ref sig .tc := ⟨.hbm, 10729, rfl⟩
abbrev main_v9750 : Ref sig .tc := ⟨.hbm, 10730, rfl⟩
abbrev main_v9751 : Ref sig .tc := ⟨.hbm, 10731, rfl⟩
abbrev main_v9752 : Ref sig .tc := ⟨.hbm, 10732, rfl⟩
abbrev main_v9753 : Ref sig .tc := ⟨.hbm, 10733, rfl⟩
abbrev main_v9754 : Ref sig .tc := ⟨.hbm, 10734, rfl⟩
abbrev main_v9755 : Ref sig .tc := ⟨.hbm, 10735, rfl⟩
abbrev main_v9756 : Ref sig .tc := ⟨.hbm, 10736, rfl⟩
abbrev main_v9757 : Ref sig .tc := ⟨.hbm, 10737, rfl⟩
abbrev main_v9758 : Ref sig .tc := ⟨.hbm, 10738, rfl⟩
abbrev main_v9759 : Ref sig .tc := ⟨.hbm, 10739, rfl⟩
abbrev main_v9760 : Ref sig .tc := ⟨.hbm, 10740, rfl⟩
abbrev main_cst_974 : Ref sig .tc := ⟨.hbm, 10741, rfl⟩
abbrev main_v9761 : Ref sig .tc := ⟨.hbm, 10742, rfl⟩
abbrev main_c_975 : Ref sig .tc := ⟨.hbm, 10743, rfl⟩
abbrev main_v9762 : Ref sig .tc := ⟨.hbm, 10744, rfl⟩
abbrev main_v9763 : Ref sig .tc := ⟨.hbm, 10745, rfl⟩
abbrev main_v9764 : Ref sig .tc := ⟨.hbm, 10746, rfl⟩
abbrev main_v9765 : Ref sig .tc := ⟨.hbm, 10747, rfl⟩
abbrev main_v9766 : Ref sig .tc := ⟨.hbm, 10748, rfl⟩
abbrev main_v9767 : Ref sig .tc := ⟨.hbm, 10749, rfl⟩
abbrev main_v9768 : Ref sig .tc := ⟨.hbm, 10750, rfl⟩
abbrev main_v9769 : Ref sig .tc := ⟨.hbm, 10751, rfl⟩
abbrev main_v9770 : Ref sig .tc := ⟨.hbm, 10752, rfl⟩
abbrev main_v9771 : Ref sig .tc := ⟨.hbm, 10753, rfl⟩
abbrev main_v9772 : Ref sig .tc := ⟨.hbm, 10754, rfl⟩
abbrev main_v9773 : Ref sig .tc := ⟨.hbm, 10755, rfl⟩
abbrev main_v9774 : Ref sig .tc := ⟨.hbm, 10756, rfl⟩
abbrev main_v9775 : Ref sig .tc := ⟨.hbm, 10757, rfl⟩
abbrev main_v9776 : Ref sig .tc := ⟨.hbm, 10758, rfl⟩
abbrev main_v9777 : Ref sig .tc := ⟨.hbm, 10759, rfl⟩
abbrev main_v9778 : Ref sig .tc := ⟨.hbm, 10760, rfl⟩
abbrev main_v9779 : Ref sig .tc := ⟨.hbm, 10761, rfl⟩
abbrev main_v9780 : Ref sig .tc := ⟨.hbm, 10762, rfl⟩
abbrev main_cst_976 : Ref sig .tc := ⟨.hbm, 10763, rfl⟩
abbrev main_v9781 : Ref sig .tc := ⟨.hbm, 10764, rfl⟩
abbrev main_c_977 : Ref sig .tc := ⟨.hbm, 10765, rfl⟩
abbrev main_v9782 : Ref sig .tc := ⟨.hbm, 10766, rfl⟩
abbrev main_v9783 : Ref sig .tc := ⟨.hbm, 10767, rfl⟩
abbrev main_v9784 : Ref sig .tc := ⟨.hbm, 10768, rfl⟩
abbrev main_v9785 : Ref sig .tc := ⟨.hbm, 10769, rfl⟩
abbrev main_v9786 : Ref sig .tc := ⟨.hbm, 10770, rfl⟩
abbrev main_v9787 : Ref sig .tc := ⟨.hbm, 10771, rfl⟩
abbrev main_v9788 : Ref sig .tc := ⟨.hbm, 10772, rfl⟩
abbrev main_v9789 : Ref sig .tc := ⟨.hbm, 10773, rfl⟩
abbrev main_v9790 : Ref sig .tc := ⟨.hbm, 10774, rfl⟩
abbrev main_v9791 : Ref sig .tc := ⟨.hbm, 10775, rfl⟩
abbrev main_v9792 : Ref sig .tc := ⟨.hbm, 10776, rfl⟩
abbrev main_v9793 : Ref sig .tc := ⟨.hbm, 10777, rfl⟩
abbrev main_v9794 : Ref sig .tc := ⟨.hbm, 10778, rfl⟩
abbrev main_v9795 : Ref sig .tc := ⟨.hbm, 10779, rfl⟩
abbrev main_v9796 : Ref sig .tc := ⟨.hbm, 10780, rfl⟩
abbrev main_v9797 : Ref sig .tc := ⟨.hbm, 10781, rfl⟩
abbrev main_v9798 : Ref sig .tc := ⟨.hbm, 10782, rfl⟩
abbrev main_v9799 : Ref sig .tc := ⟨.hbm, 10783, rfl⟩
abbrev main_v9800 : Ref sig .tc := ⟨.hbm, 10784, rfl⟩
abbrev main_cst_978 : Ref sig .tc := ⟨.hbm, 10785, rfl⟩
abbrev main_v9801 : Ref sig .tc := ⟨.hbm, 10786, rfl⟩
abbrev main_c_979 : Ref sig .tc := ⟨.hbm, 10787, rfl⟩
abbrev main_v9802 : Ref sig .tc := ⟨.hbm, 10788, rfl⟩
abbrev main_v9803 : Ref sig .tc := ⟨.hbm, 10789, rfl⟩
abbrev main_v9804 : Ref sig .tc := ⟨.hbm, 10790, rfl⟩
abbrev main_v9805 : Ref sig .tc := ⟨.hbm, 10791, rfl⟩
abbrev main_v9806 : Ref sig .tc := ⟨.hbm, 10792, rfl⟩
abbrev main_v9807 : Ref sig .tc := ⟨.hbm, 10793, rfl⟩
abbrev main_v9808 : Ref sig .tc := ⟨.hbm, 10794, rfl⟩
abbrev main_v9809 : Ref sig .tc := ⟨.hbm, 10795, rfl⟩
abbrev main_v9810 : Ref sig .tc := ⟨.hbm, 10796, rfl⟩
abbrev main_v9811 : Ref sig .tc := ⟨.hbm, 10797, rfl⟩
abbrev main_v9812 : Ref sig .tc := ⟨.hbm, 10798, rfl⟩
abbrev main_v9813 : Ref sig .tc := ⟨.hbm, 10799, rfl⟩
abbrev main_v9814 : Ref sig .tc := ⟨.hbm, 10800, rfl⟩
abbrev main_v9815 : Ref sig .tc := ⟨.hbm, 10801, rfl⟩
abbrev main_v9816 : Ref sig .tc := ⟨.hbm, 10802, rfl⟩
abbrev main_v9817 : Ref sig .tc := ⟨.hbm, 10803, rfl⟩
abbrev main_v9818 : Ref sig .tc := ⟨.hbm, 10804, rfl⟩
abbrev main_v9819 : Ref sig .tc := ⟨.hbm, 10805, rfl⟩
abbrev main_v9820 : Ref sig .tc := ⟨.hbm, 10806, rfl⟩
abbrev main_cst_980 : Ref sig .tc := ⟨.hbm, 10807, rfl⟩
abbrev main_v9821 : Ref sig .tc := ⟨.hbm, 10808, rfl⟩
abbrev main_c_981 : Ref sig .tc := ⟨.hbm, 10809, rfl⟩
abbrev main_v9822 : Ref sig .tc := ⟨.hbm, 10810, rfl⟩
abbrev main_v9823 : Ref sig .tc := ⟨.hbm, 10811, rfl⟩
abbrev main_v9824 : Ref sig .tc := ⟨.hbm, 10812, rfl⟩
abbrev main_v9825 : Ref sig .tc := ⟨.hbm, 10813, rfl⟩
abbrev main_v9826 : Ref sig .tc := ⟨.hbm, 10814, rfl⟩
abbrev main_v9827 : Ref sig .tc := ⟨.hbm, 10815, rfl⟩
abbrev main_v9828 : Ref sig .tc := ⟨.hbm, 10816, rfl⟩
abbrev main_v9829 : Ref sig .tc := ⟨.hbm, 10817, rfl⟩
abbrev main_v9830 : Ref sig .tc := ⟨.hbm, 10818, rfl⟩
abbrev main_v9831 : Ref sig .tc := ⟨.hbm, 10819, rfl⟩
abbrev main_v9832 : Ref sig .tc := ⟨.hbm, 10820, rfl⟩
abbrev main_v9833 : Ref sig .tc := ⟨.hbm, 10821, rfl⟩
abbrev main_v9834 : Ref sig .tc := ⟨.hbm, 10822, rfl⟩
abbrev main_v9835 : Ref sig .tc := ⟨.hbm, 10823, rfl⟩
abbrev main_v9836 : Ref sig .tc := ⟨.hbm, 10824, rfl⟩
abbrev main_v9837 : Ref sig .tc := ⟨.hbm, 10825, rfl⟩
abbrev main_v9838 : Ref sig .tc := ⟨.hbm, 10826, rfl⟩
abbrev main_v9839 : Ref sig .tc := ⟨.hbm, 10827, rfl⟩
abbrev main_v9840 : Ref sig .tc := ⟨.hbm, 10828, rfl⟩
abbrev main_cst_982 : Ref sig .tc := ⟨.hbm, 10829, rfl⟩
abbrev main_v9841 : Ref sig .tc := ⟨.hbm, 10830, rfl⟩
abbrev main_c_983 : Ref sig .tc := ⟨.hbm, 10831, rfl⟩
abbrev main_v9842 : Ref sig .tc := ⟨.hbm, 10832, rfl⟩
abbrev main_v9843 : Ref sig .tc := ⟨.hbm, 10833, rfl⟩
abbrev main_v9844 : Ref sig .tc := ⟨.hbm, 10834, rfl⟩
abbrev main_v9845 : Ref sig .tc := ⟨.hbm, 10835, rfl⟩
abbrev main_v9846 : Ref sig .tc := ⟨.hbm, 10836, rfl⟩
abbrev main_v9847 : Ref sig .tc := ⟨.hbm, 10837, rfl⟩
abbrev main_v9848 : Ref sig .tc := ⟨.hbm, 10838, rfl⟩
abbrev main_v9849 : Ref sig .tc := ⟨.hbm, 10839, rfl⟩
abbrev main_v9850 : Ref sig .tc := ⟨.hbm, 10840, rfl⟩
abbrev main_v9851 : Ref sig .tc := ⟨.hbm, 10841, rfl⟩
abbrev main_v9852 : Ref sig .tc := ⟨.hbm, 10842, rfl⟩
abbrev main_v9853 : Ref sig .tc := ⟨.hbm, 10843, rfl⟩
abbrev main_v9854 : Ref sig .tc := ⟨.hbm, 10844, rfl⟩
abbrev main_v9855 : Ref sig .tc := ⟨.hbm, 10845, rfl⟩
abbrev main_v9856 : Ref sig .tc := ⟨.hbm, 10846, rfl⟩
abbrev main_v9857 : Ref sig .tc := ⟨.hbm, 10847, rfl⟩
abbrev main_v9858 : Ref sig .tc := ⟨.hbm, 10848, rfl⟩
abbrev main_v9859 : Ref sig .tc := ⟨.hbm, 10849, rfl⟩
abbrev main_v9860 : Ref sig .tc := ⟨.hbm, 10850, rfl⟩
abbrev main_cst_984 : Ref sig .tc := ⟨.hbm, 10851, rfl⟩
abbrev main_v9861 : Ref sig .tc := ⟨.hbm, 10852, rfl⟩
abbrev main_c_985 : Ref sig .tc := ⟨.hbm, 10853, rfl⟩
abbrev main_v9862 : Ref sig .tc := ⟨.hbm, 10854, rfl⟩
abbrev main_v9863 : Ref sig .tc := ⟨.hbm, 10855, rfl⟩
abbrev main_v9864 : Ref sig .tc := ⟨.hbm, 10856, rfl⟩
abbrev main_v9865 : Ref sig .tc := ⟨.hbm, 10857, rfl⟩
abbrev main_v9866 : Ref sig .tc := ⟨.hbm, 10858, rfl⟩
abbrev main_v9867 : Ref sig .tc := ⟨.hbm, 10859, rfl⟩
abbrev main_v9868 : Ref sig .tc := ⟨.hbm, 10860, rfl⟩
abbrev main_v9869 : Ref sig .tc := ⟨.hbm, 10861, rfl⟩
abbrev main_v9870 : Ref sig .tc := ⟨.hbm, 10862, rfl⟩
abbrev main_v9871 : Ref sig .tc := ⟨.hbm, 10863, rfl⟩
abbrev main_v9872 : Ref sig .tc := ⟨.hbm, 10864, rfl⟩
abbrev main_v9873 : Ref sig .tc := ⟨.hbm, 10865, rfl⟩
abbrev main_v9874 : Ref sig .tc := ⟨.hbm, 10866, rfl⟩
abbrev main_v9875 : Ref sig .tc := ⟨.hbm, 10867, rfl⟩
abbrev main_v9876 : Ref sig .tc := ⟨.hbm, 10868, rfl⟩
abbrev main_v9877 : Ref sig .tc := ⟨.hbm, 10869, rfl⟩
abbrev main_v9878 : Ref sig .tc := ⟨.hbm, 10870, rfl⟩
abbrev main_v9879 : Ref sig .tc := ⟨.hbm, 10871, rfl⟩
abbrev main_v9880 : Ref sig .tc := ⟨.hbm, 10872, rfl⟩
abbrev main_cst_986 : Ref sig .tc := ⟨.hbm, 10873, rfl⟩
abbrev main_v9881 : Ref sig .tc := ⟨.hbm, 10874, rfl⟩
abbrev main_c_987 : Ref sig .tc := ⟨.hbm, 10875, rfl⟩
abbrev main_v9882 : Ref sig .tc := ⟨.hbm, 10876, rfl⟩
abbrev main_v9883 : Ref sig .tc := ⟨.hbm, 10877, rfl⟩
abbrev main_v9884 : Ref sig .tc := ⟨.hbm, 10878, rfl⟩
abbrev main_v9885 : Ref sig .tc := ⟨.hbm, 10879, rfl⟩
abbrev main_v9886 : Ref sig .tc := ⟨.hbm, 10880, rfl⟩
abbrev main_v9887 : Ref sig .tc := ⟨.hbm, 10881, rfl⟩
abbrev main_v9888 : Ref sig .tc := ⟨.hbm, 10882, rfl⟩
abbrev main_v9889 : Ref sig .tc := ⟨.hbm, 10883, rfl⟩
abbrev main_v9890 : Ref sig .tc := ⟨.hbm, 10884, rfl⟩
abbrev main_v9891 : Ref sig .tc := ⟨.hbm, 10885, rfl⟩
abbrev main_v9892 : Ref sig .tc := ⟨.hbm, 10886, rfl⟩
abbrev main_v9893 : Ref sig .tc := ⟨.hbm, 10887, rfl⟩
abbrev main_v9894 : Ref sig .tc := ⟨.hbm, 10888, rfl⟩
abbrev main_v9895 : Ref sig .tc := ⟨.hbm, 10889, rfl⟩
abbrev main_v9896 : Ref sig .tc := ⟨.hbm, 10890, rfl⟩
abbrev main_v9897 : Ref sig .tc := ⟨.hbm, 10891, rfl⟩
abbrev main_v9898 : Ref sig .tc := ⟨.hbm, 10892, rfl⟩
abbrev main_v9899 : Ref sig .tc := ⟨.hbm, 10893, rfl⟩
abbrev main_v9900 : Ref sig .tc := ⟨.hbm, 10894, rfl⟩
abbrev main_cst_988 : Ref sig .tc := ⟨.hbm, 10895, rfl⟩
abbrev main_v9901 : Ref sig .tc := ⟨.hbm, 10896, rfl⟩
abbrev main_c_989 : Ref sig .tc := ⟨.hbm, 10897, rfl⟩
abbrev main_v9902 : Ref sig .tc := ⟨.hbm, 10898, rfl⟩
abbrev main_v9903 : Ref sig .tc := ⟨.hbm, 10899, rfl⟩
abbrev main_v9904 : Ref sig .tc := ⟨.hbm, 10900, rfl⟩
abbrev main_v9905 : Ref sig .tc := ⟨.hbm, 10901, rfl⟩
abbrev main_v9906 : Ref sig .tc := ⟨.hbm, 10902, rfl⟩
abbrev main_v9907 : Ref sig .tc := ⟨.hbm, 10903, rfl⟩
abbrev main_v9908 : Ref sig .tc := ⟨.hbm, 10904, rfl⟩
abbrev main_v9909 : Ref sig .tc := ⟨.hbm, 10905, rfl⟩
abbrev main_v9910 : Ref sig .tc := ⟨.hbm, 10906, rfl⟩
abbrev main_v9911 : Ref sig .tc := ⟨.hbm, 10907, rfl⟩
abbrev main_v9912 : Ref sig .tc := ⟨.hbm, 10908, rfl⟩
abbrev main_v9913 : Ref sig .tc := ⟨.hbm, 10909, rfl⟩
abbrev main_v9914 : Ref sig .tc := ⟨.hbm, 10910, rfl⟩
abbrev main_v9915 : Ref sig .tc := ⟨.hbm, 10911, rfl⟩
abbrev main_v9916 : Ref sig .tc := ⟨.hbm, 10912, rfl⟩
abbrev main_v9917 : Ref sig .tc := ⟨.hbm, 10913, rfl⟩
abbrev main_v9918 : Ref sig .tc := ⟨.hbm, 10914, rfl⟩
abbrev main_v9919 : Ref sig .tc := ⟨.hbm, 10915, rfl⟩
abbrev main_v9920 : Ref sig .tc := ⟨.hbm, 10916, rfl⟩
abbrev main_cst_990 : Ref sig .tc := ⟨.hbm, 10917, rfl⟩
abbrev main_v9921 : Ref sig .tc := ⟨.hbm, 10918, rfl⟩
abbrev main_c_991 : Ref sig .tc := ⟨.hbm, 10919, rfl⟩
abbrev main_v9922 : Ref sig .tc := ⟨.hbm, 10920, rfl⟩
abbrev main_v9923 : Ref sig .tc := ⟨.hbm, 10921, rfl⟩
abbrev main_v9924 : Ref sig .tc := ⟨.hbm, 10922, rfl⟩
abbrev main_v9925 : Ref sig .tc := ⟨.hbm, 10923, rfl⟩
abbrev main_v9926 : Ref sig .tc := ⟨.hbm, 10924, rfl⟩
abbrev main_v9927 : Ref sig .tc := ⟨.hbm, 10925, rfl⟩
abbrev main_v9928 : Ref sig .tc := ⟨.hbm, 10926, rfl⟩
abbrev main_v9929 : Ref sig .tc := ⟨.hbm, 10927, rfl⟩
abbrev main_v9930 : Ref sig .tc := ⟨.hbm, 10928, rfl⟩
abbrev main_v9931 : Ref sig .tc := ⟨.hbm, 10929, rfl⟩
abbrev main_v9932 : Ref sig .tc := ⟨.hbm, 10930, rfl⟩
abbrev main_v9933 : Ref sig .tc := ⟨.hbm, 10931, rfl⟩
abbrev main_v9934 : Ref sig .tc := ⟨.hbm, 10932, rfl⟩
abbrev main_v9935 : Ref sig .tc := ⟨.hbm, 10933, rfl⟩
abbrev main_v9936 : Ref sig .tc := ⟨.hbm, 10934, rfl⟩
abbrev main_v9937 : Ref sig .tc := ⟨.hbm, 10935, rfl⟩
abbrev main_v9938 : Ref sig .tc := ⟨.hbm, 10936, rfl⟩
abbrev main_v9939 : Ref sig .tc := ⟨.hbm, 10937, rfl⟩
abbrev main_v9940 : Ref sig .tc := ⟨.hbm, 10938, rfl⟩
abbrev main_cst_992 : Ref sig .tc := ⟨.hbm, 10939, rfl⟩
abbrev main_v9941 : Ref sig .tc := ⟨.hbm, 10940, rfl⟩
abbrev main_c_993 : Ref sig .tc := ⟨.hbm, 10941, rfl⟩
abbrev main_v9942 : Ref sig .tc := ⟨.hbm, 10942, rfl⟩
abbrev main_v9943 : Ref sig .tc := ⟨.hbm, 10943, rfl⟩
abbrev main_v9944 : Ref sig .tc := ⟨.hbm, 10944, rfl⟩
abbrev main_v9945 : Ref sig .tc := ⟨.hbm, 10945, rfl⟩
abbrev main_v9946 : Ref sig .tc := ⟨.hbm, 10946, rfl⟩
abbrev main_v9947 : Ref sig .tc := ⟨.hbm, 10947, rfl⟩
abbrev main_v9948 : Ref sig .tc := ⟨.hbm, 10948, rfl⟩
abbrev main_v9949 : Ref sig .tc := ⟨.hbm, 10949, rfl⟩
abbrev main_v9950 : Ref sig .tc := ⟨.hbm, 10950, rfl⟩
abbrev main_v9951 : Ref sig .tc := ⟨.hbm, 10951, rfl⟩
abbrev main_v9952 : Ref sig .tc := ⟨.hbm, 10952, rfl⟩
abbrev main_v9953 : Ref sig .tc := ⟨.hbm, 10953, rfl⟩
abbrev main_v9954 : Ref sig .tc := ⟨.hbm, 10954, rfl⟩
abbrev main_v9955 : Ref sig .tc := ⟨.hbm, 10955, rfl⟩
abbrev main_v9956 : Ref sig .tc := ⟨.hbm, 10956, rfl⟩
abbrev main_v9957 : Ref sig .tc := ⟨.hbm, 10957, rfl⟩
abbrev main_v9958 : Ref sig .tc := ⟨.hbm, 10958, rfl⟩
abbrev main_v9959 : Ref sig .tc := ⟨.hbm, 10959, rfl⟩
abbrev main_v9960 : Ref sig .tc := ⟨.hbm, 10960, rfl⟩
abbrev main_cst_994 : Ref sig .tc := ⟨.hbm, 10961, rfl⟩
abbrev main_v9961 : Ref sig .tc := ⟨.hbm, 10962, rfl⟩
abbrev main_c_995 : Ref sig .tc := ⟨.hbm, 10963, rfl⟩
abbrev main_v9962 : Ref sig .tc := ⟨.hbm, 10964, rfl⟩
abbrev main_v9963 : Ref sig .tc := ⟨.hbm, 10965, rfl⟩
abbrev main_v9964 : Ref sig .tc := ⟨.hbm, 10966, rfl⟩
abbrev main_v9965 : Ref sig .tc := ⟨.hbm, 10967, rfl⟩
abbrev main_v9966 : Ref sig .tc := ⟨.hbm, 10968, rfl⟩
abbrev main_v9967 : Ref sig .tc := ⟨.hbm, 10969, rfl⟩
abbrev main_v9968 : Ref sig .tc := ⟨.hbm, 10970, rfl⟩
abbrev main_v9969 : Ref sig .tc := ⟨.hbm, 10971, rfl⟩
abbrev main_v9970 : Ref sig .tc := ⟨.hbm, 10972, rfl⟩
abbrev main_v9971 : Ref sig .tc := ⟨.hbm, 10973, rfl⟩
abbrev main_v9972 : Ref sig .tc := ⟨.hbm, 10974, rfl⟩
abbrev main_v9973 : Ref sig .tc := ⟨.hbm, 10975, rfl⟩
abbrev main_v9974 : Ref sig .tc := ⟨.hbm, 10976, rfl⟩
abbrev main_v9975 : Ref sig .tc := ⟨.hbm, 10977, rfl⟩
abbrev main_v9976 : Ref sig .tc := ⟨.hbm, 10978, rfl⟩
abbrev main_v9977 : Ref sig .tc := ⟨.hbm, 10979, rfl⟩
abbrev main_v9978 : Ref sig .tc := ⟨.hbm, 10980, rfl⟩
abbrev main_v9979 : Ref sig .tc := ⟨.hbm, 10981, rfl⟩
abbrev main_v9980 : Ref sig .tc := ⟨.hbm, 10982, rfl⟩
abbrev main_cst_996 : Ref sig .tc := ⟨.hbm, 10983, rfl⟩
abbrev main_v9981 : Ref sig .tc := ⟨.hbm, 10984, rfl⟩
abbrev main_c_997 : Ref sig .tc := ⟨.hbm, 10985, rfl⟩
abbrev main_v9982 : Ref sig .tc := ⟨.hbm, 10986, rfl⟩
abbrev main_v9983 : Ref sig .tc := ⟨.hbm, 10987, rfl⟩
abbrev main_v9984 : Ref sig .tc := ⟨.hbm, 10988, rfl⟩
abbrev main_v9985 : Ref sig .tc := ⟨.hbm, 10989, rfl⟩
abbrev main_v9986 : Ref sig .tc := ⟨.hbm, 10990, rfl⟩
abbrev main_v9987 : Ref sig .tc := ⟨.hbm, 10991, rfl⟩
abbrev main_v9988 : Ref sig .tc := ⟨.hbm, 10992, rfl⟩
abbrev main_v9989 : Ref sig .tc := ⟨.hbm, 10993, rfl⟩
abbrev main_v9990 : Ref sig .tc := ⟨.hbm, 10994, rfl⟩
abbrev main_v9991 : Ref sig .tc := ⟨.hbm, 10995, rfl⟩
abbrev main_v9992 : Ref sig .tc := ⟨.hbm, 10996, rfl⟩
abbrev main_v9993 : Ref sig .tc := ⟨.hbm, 10997, rfl⟩
abbrev main_v9994 : Ref sig .tc := ⟨.hbm, 10998, rfl⟩
abbrev main_v9995 : Ref sig .tc := ⟨.hbm, 10999, rfl⟩
abbrev main_v9996 : Ref sig .tc := ⟨.hbm, 11000, rfl⟩
abbrev main_v9997 : Ref sig .tc := ⟨.hbm, 11001, rfl⟩
abbrev main_v9998 : Ref sig .tc := ⟨.hbm, 11002, rfl⟩
abbrev main_v9999 : Ref sig .tc := ⟨.hbm, 11003, rfl⟩
abbrev main_v10000 : Ref sig .tc := ⟨.hbm, 11004, rfl⟩
abbrev main_cst_998 : Ref sig .tc := ⟨.hbm, 11005, rfl⟩
abbrev main_v10001 : Ref sig .tc := ⟨.hbm, 11006, rfl⟩
abbrev main_c_999 : Ref sig .tc := ⟨.hbm, 11007, rfl⟩
abbrev main_v10002 : Ref sig .tc := ⟨.hbm, 11008, rfl⟩
abbrev main_v10003 : Ref sig .tc := ⟨.hbm, 11009, rfl⟩
abbrev main_v10004 : Ref sig .tc := ⟨.hbm, 11010, rfl⟩
abbrev main_v10005 : Ref sig .tc := ⟨.hbm, 11011, rfl⟩
abbrev main_v10006 : Ref sig .tc := ⟨.hbm, 11012, rfl⟩
abbrev main_v10007 : Ref sig .tc := ⟨.hbm, 11013, rfl⟩
abbrev main_v10008 : Ref sig .tc := ⟨.hbm, 11014, rfl⟩
abbrev main_v10009 : Ref sig .tc := ⟨.hbm, 11015, rfl⟩
abbrev main_v10010 : Ref sig .tc := ⟨.hbm, 11016, rfl⟩
abbrev main_v10011 : Ref sig .tc := ⟨.hbm, 11017, rfl⟩
abbrev main_v10012 : Ref sig .tc := ⟨.hbm, 11018, rfl⟩
abbrev main_v10013 : Ref sig .tc := ⟨.hbm, 11019, rfl⟩
abbrev main_v10014 : Ref sig .tc := ⟨.hbm, 11020, rfl⟩
abbrev main_v10015 : Ref sig .tc := ⟨.hbm, 11021, rfl⟩
abbrev main_v10016 : Ref sig .tc := ⟨.hbm, 11022, rfl⟩
abbrev main_v10017 : Ref sig .tc := ⟨.hbm, 11023, rfl⟩
abbrev main_v10018 : Ref sig .tc := ⟨.hbm, 11024, rfl⟩
abbrev main_v10019 : Ref sig .tc := ⟨.hbm, 11025, rfl⟩
abbrev main_v10020 : Ref sig .tc := ⟨.hbm, 11026, rfl⟩
abbrev main_cst_1000 : Ref sig .tc := ⟨.hbm, 11027, rfl⟩
abbrev main_v10021 : Ref sig .tc := ⟨.hbm, 11028, rfl⟩
abbrev main_c_1001 : Ref sig .tc := ⟨.hbm, 11029, rfl⟩
abbrev main_v10022 : Ref sig .tc := ⟨.hbm, 11030, rfl⟩
abbrev main_v10023 : Ref sig .tc := ⟨.hbm, 11031, rfl⟩
abbrev main_v10024 : Ref sig .tc := ⟨.hbm, 11032, rfl⟩
abbrev main_v10025 : Ref sig .tc := ⟨.hbm, 11033, rfl⟩
abbrev main_v10026 : Ref sig .tc := ⟨.hbm, 11034, rfl⟩
abbrev main_v10027 : Ref sig .tc := ⟨.hbm, 11035, rfl⟩
abbrev main_v10028 : Ref sig .tc := ⟨.hbm, 11036, rfl⟩
abbrev main_v10029 : Ref sig .tc := ⟨.hbm, 11037, rfl⟩
abbrev main_v10030 : Ref sig .tc := ⟨.hbm, 11038, rfl⟩
abbrev main_v10031 : Ref sig .tc := ⟨.hbm, 11039, rfl⟩
abbrev main_v10032 : Ref sig .tc := ⟨.hbm, 11040, rfl⟩
abbrev main_v10033 : Ref sig .tc := ⟨.hbm, 11041, rfl⟩
abbrev main_v10034 : Ref sig .tc := ⟨.hbm, 11042, rfl⟩
abbrev main_v10035 : Ref sig .tc := ⟨.hbm, 11043, rfl⟩
abbrev main_v10036 : Ref sig .tc := ⟨.hbm, 11044, rfl⟩
abbrev main_v10037 : Ref sig .tc := ⟨.hbm, 11045, rfl⟩
abbrev main_v10038 : Ref sig .tc := ⟨.hbm, 11046, rfl⟩
abbrev main_v10039 : Ref sig .tc := ⟨.hbm, 11047, rfl⟩
abbrev main_v10040 : Ref sig .tc := ⟨.hbm, 11048, rfl⟩
abbrev main_cst_1002 : Ref sig .tc := ⟨.hbm, 11049, rfl⟩
abbrev main_v10041 : Ref sig .tc := ⟨.hbm, 11050, rfl⟩
abbrev main_c_1003 : Ref sig .tc := ⟨.hbm, 11051, rfl⟩
abbrev main_v10042 : Ref sig .tc := ⟨.hbm, 11052, rfl⟩
abbrev main_v10043 : Ref sig .tc := ⟨.hbm, 11053, rfl⟩
abbrev main_v10044 : Ref sig .tc := ⟨.hbm, 11054, rfl⟩
abbrev main_v10045 : Ref sig .tc := ⟨.hbm, 11055, rfl⟩
abbrev main_v10046 : Ref sig .tc := ⟨.hbm, 11056, rfl⟩
abbrev main_v10047 : Ref sig .tc := ⟨.hbm, 11057, rfl⟩
abbrev main_v10048 : Ref sig .tc := ⟨.hbm, 11058, rfl⟩
abbrev main_v10049 : Ref sig .tc := ⟨.hbm, 11059, rfl⟩
abbrev main_v10050 : Ref sig .tc := ⟨.hbm, 11060, rfl⟩
abbrev main_v10051 : Ref sig .tc := ⟨.hbm, 11061, rfl⟩
abbrev main_v10052 : Ref sig .tc := ⟨.hbm, 11062, rfl⟩
abbrev main_v10053 : Ref sig .tc := ⟨.hbm, 11063, rfl⟩
abbrev main_v10054 : Ref sig .tc := ⟨.hbm, 11064, rfl⟩
abbrev main_v10055 : Ref sig .tc := ⟨.hbm, 11065, rfl⟩
abbrev main_v10056 : Ref sig .tc := ⟨.hbm, 11066, rfl⟩
abbrev main_v10057 : Ref sig .tc := ⟨.hbm, 11067, rfl⟩
abbrev main_v10058 : Ref sig .tc := ⟨.hbm, 11068, rfl⟩
abbrev main_v10059 : Ref sig .tc := ⟨.hbm, 11069, rfl⟩
abbrev main_v10060 : Ref sig .tc := ⟨.hbm, 11070, rfl⟩
abbrev main_cst_1004 : Ref sig .tc := ⟨.hbm, 11071, rfl⟩
abbrev main_v10061 : Ref sig .tc := ⟨.hbm, 11072, rfl⟩
abbrev main_c_1005 : Ref sig .tc := ⟨.hbm, 11073, rfl⟩
abbrev main_v10062 : Ref sig .tc := ⟨.hbm, 11074, rfl⟩
abbrev main_v10063 : Ref sig .tc := ⟨.hbm, 11075, rfl⟩
abbrev main_v10064 : Ref sig .tc := ⟨.hbm, 11076, rfl⟩
abbrev main_v10065 : Ref sig .tc := ⟨.hbm, 11077, rfl⟩
abbrev main_v10066 : Ref sig .tc := ⟨.hbm, 11078, rfl⟩
abbrev main_v10067 : Ref sig .tc := ⟨.hbm, 11079, rfl⟩
abbrev main_v10068 : Ref sig .tc := ⟨.hbm, 11080, rfl⟩
abbrev main_v10069 : Ref sig .tc := ⟨.hbm, 11081, rfl⟩
abbrev main_v10070 : Ref sig .tc := ⟨.hbm, 11082, rfl⟩
abbrev main_v10071 : Ref sig .tc := ⟨.hbm, 11083, rfl⟩
abbrev main_v10072 : Ref sig .tc := ⟨.hbm, 11084, rfl⟩
abbrev main_v10073 : Ref sig .tc := ⟨.hbm, 11085, rfl⟩
abbrev main_v10074 : Ref sig .tc := ⟨.hbm, 11086, rfl⟩
abbrev main_v10075 : Ref sig .tc := ⟨.hbm, 11087, rfl⟩
abbrev main_v10076 : Ref sig .tc := ⟨.hbm, 11088, rfl⟩
abbrev main_v10077 : Ref sig .tc := ⟨.hbm, 11089, rfl⟩
abbrev main_v10078 : Ref sig .tc := ⟨.hbm, 11090, rfl⟩
abbrev main_v10079 : Ref sig .tc := ⟨.hbm, 11091, rfl⟩
abbrev main_v10080 : Ref sig .tc := ⟨.hbm, 11092, rfl⟩
abbrev main_cst_1006 : Ref sig .tc := ⟨.hbm, 11093, rfl⟩
abbrev main_v10081 : Ref sig .tc := ⟨.hbm, 11094, rfl⟩
abbrev main_c_1007 : Ref sig .tc := ⟨.hbm, 11095, rfl⟩
abbrev main_v10082 : Ref sig .tc := ⟨.hbm, 11096, rfl⟩
abbrev main_v10083 : Ref sig .tc := ⟨.hbm, 11097, rfl⟩
abbrev main_v10084 : Ref sig .tc := ⟨.hbm, 11098, rfl⟩
abbrev main_v10085 : Ref sig .tc := ⟨.hbm, 11099, rfl⟩
abbrev main_v10086 : Ref sig .tc := ⟨.hbm, 11100, rfl⟩
abbrev main_v10087 : Ref sig .tc := ⟨.hbm, 11101, rfl⟩
abbrev main_v10088 : Ref sig .tc := ⟨.hbm, 11102, rfl⟩
abbrev main_v10089 : Ref sig .tc := ⟨.hbm, 11103, rfl⟩
abbrev main_v10090 : Ref sig .tc := ⟨.hbm, 11104, rfl⟩
abbrev main_v10091 : Ref sig .tc := ⟨.hbm, 11105, rfl⟩
abbrev main_v10092 : Ref sig .tc := ⟨.hbm, 11106, rfl⟩
abbrev main_v10093 : Ref sig .tc := ⟨.hbm, 11107, rfl⟩
abbrev main_v10094 : Ref sig .tc := ⟨.hbm, 11108, rfl⟩
abbrev main_v10095 : Ref sig .tc := ⟨.hbm, 11109, rfl⟩
abbrev main_v10096 : Ref sig .tc := ⟨.hbm, 11110, rfl⟩
abbrev main_v10097 : Ref sig .tc := ⟨.hbm, 11111, rfl⟩
abbrev main_v10098 : Ref sig .tc := ⟨.hbm, 11112, rfl⟩
abbrev main_v10099 : Ref sig .tc := ⟨.hbm, 11113, rfl⟩
abbrev main_v10100 : Ref sig .tc := ⟨.hbm, 11114, rfl⟩
abbrev main_cst_1008 : Ref sig .tc := ⟨.hbm, 11115, rfl⟩
abbrev main_v10101 : Ref sig .tc := ⟨.hbm, 11116, rfl⟩
abbrev main_c_1009 : Ref sig .tc := ⟨.hbm, 11117, rfl⟩
abbrev main_v10102 : Ref sig .tc := ⟨.hbm, 11118, rfl⟩
abbrev main_v10103 : Ref sig .tc := ⟨.hbm, 11119, rfl⟩
abbrev main_v10104 : Ref sig .tc := ⟨.hbm, 11120, rfl⟩
abbrev main_v10105 : Ref sig .tc := ⟨.hbm, 11121, rfl⟩
abbrev main_v10106 : Ref sig .tc := ⟨.hbm, 11122, rfl⟩
abbrev main_v10107 : Ref sig .tc := ⟨.hbm, 11123, rfl⟩
abbrev main_v10108 : Ref sig .tc := ⟨.hbm, 11124, rfl⟩
abbrev main_v10109 : Ref sig .tc := ⟨.hbm, 11125, rfl⟩
abbrev main_v10110 : Ref sig .tc := ⟨.hbm, 11126, rfl⟩
abbrev main_v10111 : Ref sig .tc := ⟨.hbm, 11127, rfl⟩
abbrev main_v10112 : Ref sig .tc := ⟨.hbm, 11128, rfl⟩
abbrev main_v10113 : Ref sig .tc := ⟨.hbm, 11129, rfl⟩
abbrev main_v10114 : Ref sig .tc := ⟨.hbm, 11130, rfl⟩
abbrev main_v10115 : Ref sig .tc := ⟨.hbm, 11131, rfl⟩
abbrev main_v10116 : Ref sig .tc := ⟨.hbm, 11132, rfl⟩
abbrev main_v10117 : Ref sig .tc := ⟨.hbm, 11133, rfl⟩
abbrev main_v10118 : Ref sig .tc := ⟨.hbm, 11134, rfl⟩
abbrev main_v10119 : Ref sig .tc := ⟨.hbm, 11135, rfl⟩
abbrev main_v10120 : Ref sig .tc := ⟨.hbm, 11136, rfl⟩
abbrev main_cst_1010 : Ref sig .tc := ⟨.hbm, 11137, rfl⟩
abbrev main_v10121 : Ref sig .tc := ⟨.hbm, 11138, rfl⟩
abbrev main_c_1011 : Ref sig .tc := ⟨.hbm, 11139, rfl⟩
abbrev main_v10122 : Ref sig .tc := ⟨.hbm, 11140, rfl⟩
abbrev main_v10123 : Ref sig .tc := ⟨.hbm, 11141, rfl⟩
abbrev main_v10124 : Ref sig .tc := ⟨.hbm, 11142, rfl⟩
abbrev main_v10125 : Ref sig .tc := ⟨.hbm, 11143, rfl⟩
abbrev main_v10126 : Ref sig .tc := ⟨.hbm, 11144, rfl⟩
abbrev main_v10127 : Ref sig .tc := ⟨.hbm, 11145, rfl⟩
abbrev main_v10128 : Ref sig .tc := ⟨.hbm, 11146, rfl⟩
abbrev main_v10129 : Ref sig .tc := ⟨.hbm, 11147, rfl⟩
abbrev main_v10130 : Ref sig .tc := ⟨.hbm, 11148, rfl⟩
abbrev main_v10131 : Ref sig .tc := ⟨.hbm, 11149, rfl⟩
abbrev main_v10132 : Ref sig .tc := ⟨.hbm, 11150, rfl⟩
abbrev main_v10133 : Ref sig .tc := ⟨.hbm, 11151, rfl⟩
abbrev main_v10134 : Ref sig .tc := ⟨.hbm, 11152, rfl⟩
abbrev main_v10135 : Ref sig .tc := ⟨.hbm, 11153, rfl⟩
abbrev main_v10136 : Ref sig .tc := ⟨.hbm, 11154, rfl⟩
abbrev main_v10137 : Ref sig .tc := ⟨.hbm, 11155, rfl⟩
abbrev main_v10138 : Ref sig .tc := ⟨.hbm, 11156, rfl⟩
abbrev main_v10139 : Ref sig .tc := ⟨.hbm, 11157, rfl⟩
abbrev main_v10140 : Ref sig .tc := ⟨.hbm, 11158, rfl⟩
abbrev main_cst_1012 : Ref sig .tc := ⟨.hbm, 11159, rfl⟩
abbrev main_v10141 : Ref sig .tc := ⟨.hbm, 11160, rfl⟩
abbrev main_c_1013 : Ref sig .tc := ⟨.hbm, 11161, rfl⟩
abbrev main_v10142 : Ref sig .tc := ⟨.hbm, 11162, rfl⟩
abbrev main_v10143 : Ref sig .tc := ⟨.hbm, 11163, rfl⟩
abbrev main_v10144 : Ref sig .tc := ⟨.hbm, 11164, rfl⟩
abbrev main_v10145 : Ref sig .tc := ⟨.hbm, 11165, rfl⟩
abbrev main_v10146 : Ref sig .tc := ⟨.hbm, 11166, rfl⟩
abbrev main_v10147 : Ref sig .tc := ⟨.hbm, 11167, rfl⟩
abbrev main_v10148 : Ref sig .tc := ⟨.hbm, 11168, rfl⟩
abbrev main_v10149 : Ref sig .tc := ⟨.hbm, 11169, rfl⟩
abbrev main_v10150 : Ref sig .tc := ⟨.hbm, 11170, rfl⟩
abbrev main_v10151 : Ref sig .tc := ⟨.hbm, 11171, rfl⟩
abbrev main_v10152 : Ref sig .tc := ⟨.hbm, 11172, rfl⟩
abbrev main_v10153 : Ref sig .tc := ⟨.hbm, 11173, rfl⟩
abbrev main_v10154 : Ref sig .tc := ⟨.hbm, 11174, rfl⟩
abbrev main_v10155 : Ref sig .tc := ⟨.hbm, 11175, rfl⟩
abbrev main_v10156 : Ref sig .tc := ⟨.hbm, 11176, rfl⟩
abbrev main_v10157 : Ref sig .tc := ⟨.hbm, 11177, rfl⟩
abbrev main_v10158 : Ref sig .tc := ⟨.hbm, 11178, rfl⟩
abbrev main_v10159 : Ref sig .tc := ⟨.hbm, 11179, rfl⟩
abbrev main_v10160 : Ref sig .tc := ⟨.hbm, 11180, rfl⟩
abbrev main_cst_1014 : Ref sig .tc := ⟨.hbm, 11181, rfl⟩
abbrev main_v10161 : Ref sig .tc := ⟨.hbm, 11182, rfl⟩
abbrev main_c_1015 : Ref sig .tc := ⟨.hbm, 11183, rfl⟩
abbrev main_v10162 : Ref sig .tc := ⟨.hbm, 11184, rfl⟩
abbrev main_v10163 : Ref sig .tc := ⟨.hbm, 11185, rfl⟩
abbrev main_v10164 : Ref sig .tc := ⟨.hbm, 11186, rfl⟩
abbrev main_v10165 : Ref sig .tc := ⟨.hbm, 11187, rfl⟩
abbrev main_v10166 : Ref sig .tc := ⟨.hbm, 11188, rfl⟩
abbrev main_v10167 : Ref sig .tc := ⟨.hbm, 11189, rfl⟩
abbrev main_v10168 : Ref sig .tc := ⟨.hbm, 11190, rfl⟩
abbrev main_v10169 : Ref sig .tc := ⟨.hbm, 11191, rfl⟩
abbrev main_v10170 : Ref sig .tc := ⟨.hbm, 11192, rfl⟩
abbrev main_v10171 : Ref sig .tc := ⟨.hbm, 11193, rfl⟩
abbrev main_v10172 : Ref sig .tc := ⟨.hbm, 11194, rfl⟩
abbrev main_v10173 : Ref sig .tc := ⟨.hbm, 11195, rfl⟩
abbrev main_v10174 : Ref sig .tc := ⟨.hbm, 11196, rfl⟩
abbrev main_v10175 : Ref sig .tc := ⟨.hbm, 11197, rfl⟩
abbrev main_v10176 : Ref sig .tc := ⟨.hbm, 11198, rfl⟩
abbrev main_v10177 : Ref sig .tc := ⟨.hbm, 11199, rfl⟩
abbrev main_v10178 : Ref sig .tc := ⟨.hbm, 11200, rfl⟩
abbrev main_v10179 : Ref sig .tc := ⟨.hbm, 11201, rfl⟩
abbrev main_v10180 : Ref sig .tc := ⟨.hbm, 11202, rfl⟩
abbrev main_cst_1016 : Ref sig .tc := ⟨.hbm, 11203, rfl⟩
abbrev main_v10181 : Ref sig .tc := ⟨.hbm, 11204, rfl⟩
abbrev main_c_1017 : Ref sig .tc := ⟨.hbm, 11205, rfl⟩
abbrev main_v10182 : Ref sig .tc := ⟨.hbm, 11206, rfl⟩
abbrev main_v10183 : Ref sig .tc := ⟨.hbm, 11207, rfl⟩
abbrev main_v10184 : Ref sig .tc := ⟨.hbm, 11208, rfl⟩
abbrev main_v10185 : Ref sig .tc := ⟨.hbm, 11209, rfl⟩
abbrev main_v10186 : Ref sig .tc := ⟨.hbm, 11210, rfl⟩
abbrev main_v10187 : Ref sig .tc := ⟨.hbm, 11211, rfl⟩
abbrev main_v10188 : Ref sig .tc := ⟨.hbm, 11212, rfl⟩
abbrev main_v10189 : Ref sig .tc := ⟨.hbm, 11213, rfl⟩
abbrev main_v10190 : Ref sig .tc := ⟨.hbm, 11214, rfl⟩
abbrev main_v10191 : Ref sig .tc := ⟨.hbm, 11215, rfl⟩
abbrev main_v10192 : Ref sig .tc := ⟨.hbm, 11216, rfl⟩
abbrev main_v10193 : Ref sig .tc := ⟨.hbm, 11217, rfl⟩
abbrev main_v10194 : Ref sig .tc := ⟨.hbm, 11218, rfl⟩
abbrev main_v10195 : Ref sig .tc := ⟨.hbm, 11219, rfl⟩
abbrev main_v10196 : Ref sig .tc := ⟨.hbm, 11220, rfl⟩
abbrev main_v10197 : Ref sig .tc := ⟨.hbm, 11221, rfl⟩
abbrev main_v10198 : Ref sig .tc := ⟨.hbm, 11222, rfl⟩
abbrev main_v10199 : Ref sig .tc := ⟨.hbm, 11223, rfl⟩
abbrev main_v10200 : Ref sig .tc := ⟨.hbm, 11224, rfl⟩
abbrev main_cst_1018 : Ref sig .tc := ⟨.hbm, 11225, rfl⟩
abbrev main_v10201 : Ref sig .tc := ⟨.hbm, 11226, rfl⟩
abbrev main_c_1019 : Ref sig .tc := ⟨.hbm, 11227, rfl⟩
abbrev main_v10202 : Ref sig .tc := ⟨.hbm, 11228, rfl⟩
abbrev main_v10203 : Ref sig .tc := ⟨.hbm, 11229, rfl⟩
abbrev main_v10204 : Ref sig .tc := ⟨.hbm, 11230, rfl⟩
abbrev main_v10205 : Ref sig .tc := ⟨.hbm, 11231, rfl⟩
abbrev main_v10206 : Ref sig .tc := ⟨.hbm, 11232, rfl⟩
abbrev main_v10207 : Ref sig .tc := ⟨.hbm, 11233, rfl⟩
abbrev main_v10208 : Ref sig .tc := ⟨.hbm, 11234, rfl⟩
abbrev main_v10209 : Ref sig .tc := ⟨.hbm, 11235, rfl⟩
abbrev main_v10210 : Ref sig .tc := ⟨.hbm, 11236, rfl⟩
abbrev main_v10211 : Ref sig .tc := ⟨.hbm, 11237, rfl⟩
abbrev main_v10212 : Ref sig .tc := ⟨.hbm, 11238, rfl⟩
abbrev main_v10213 : Ref sig .tc := ⟨.hbm, 11239, rfl⟩
abbrev main_v10214 : Ref sig .tc := ⟨.hbm, 11240, rfl⟩
abbrev main_v10215 : Ref sig .tc := ⟨.hbm, 11241, rfl⟩
abbrev main_v10216 : Ref sig .tc := ⟨.hbm, 11242, rfl⟩
abbrev main_v10217 : Ref sig .tc := ⟨.hbm, 11243, rfl⟩
abbrev main_v10218 : Ref sig .tc := ⟨.hbm, 11244, rfl⟩
abbrev main_v10219 : Ref sig .tc := ⟨.hbm, 11245, rfl⟩
abbrev main_v10220 : Ref sig .tc := ⟨.hbm, 11246, rfl⟩
abbrev main_cst_1020 : Ref sig .tc := ⟨.hbm, 11247, rfl⟩
abbrev main_v10221 : Ref sig .tc := ⟨.hbm, 11248, rfl⟩
abbrev main_c_1021 : Ref sig .tc := ⟨.hbm, 11249, rfl⟩
abbrev main_v10222 : Ref sig .tc := ⟨.hbm, 11250, rfl⟩
abbrev main_v10223 : Ref sig .tc := ⟨.hbm, 11251, rfl⟩
abbrev main_v10224 : Ref sig .tc := ⟨.hbm, 11252, rfl⟩
abbrev main_v10225 : Ref sig .tc := ⟨.hbm, 11253, rfl⟩
abbrev main_v10226 : Ref sig .tc := ⟨.hbm, 11254, rfl⟩
abbrev main_v10227 : Ref sig .tc := ⟨.hbm, 11255, rfl⟩
abbrev main_v10228 : Ref sig .tc := ⟨.hbm, 11256, rfl⟩
abbrev main_v10229 : Ref sig .tc := ⟨.hbm, 11257, rfl⟩
abbrev main_v10230 : Ref sig .tc := ⟨.hbm, 11258, rfl⟩
abbrev main_v10231 : Ref sig .tc := ⟨.hbm, 11259, rfl⟩
abbrev main_v10232 : Ref sig .tc := ⟨.hbm, 11260, rfl⟩
abbrev main_v10233 : Ref sig .tc := ⟨.hbm, 11261, rfl⟩
abbrev main_v10234 : Ref sig .tc := ⟨.hbm, 11262, rfl⟩
abbrev main_v10235 : Ref sig .tc := ⟨.hbm, 11263, rfl⟩
abbrev main_v10236 : Ref sig .tc := ⟨.hbm, 11264, rfl⟩
abbrev main_v10237 : Ref sig .tc := ⟨.hbm, 11265, rfl⟩
abbrev main_v10238 : Ref sig .tc := ⟨.hbm, 11266, rfl⟩
abbrev main_v10239 : Ref sig .tc := ⟨.hbm, 11267, rfl⟩
abbrev main_v10240 : Ref sig .tc := ⟨.hbm, 11268, rfl⟩
abbrev main_cst_1022 : Ref sig .tc := ⟨.hbm, 11269, rfl⟩
abbrev main_v10241 : Ref sig .tc := ⟨.hbm, 11270, rfl⟩
abbrev main_c_1023 : Ref sig .tc := ⟨.hbm, 11271, rfl⟩
abbrev main_v10242 : Ref sig .tc := ⟨.hbm, 11272, rfl⟩
abbrev main_v10243 : Ref sig .tc := ⟨.hbm, 11273, rfl⟩

abbrev nD : Nat := 1
abbrev τ : Topo := Topo.v7x

variable {F : FTy → Type} [FloatOps F]

class Shapes1.Facts₀ : Prop where
  bcast_S_S4x256x16 : S_.BroadcastsInDim S4x256x16 (![] : Fin 0 → Fin S4x256x16.rank)
  bcast_S_S4x512x256 : S_.BroadcastsInDim S4x512x256 (![] : Fin 0 → Fin S4x512x256.rank)
  bcast_S256x16_S1x256x16_1_2 : S256x16.BroadcastsInDim S1x256x16 (![1, 2] : Fin 2 → Fin S1x256x16.rank)
  bcast_S1x256x16_S4x256x16_0_1_2 : S1x256x16.BroadcastsInDim S4x256x16 (![0, 1, 2] : Fin 3 → Fin S4x256x16.rank)
  slices_S4x512x256_S4x1x256_0_0_0 : S4x512x256.Slices ![0, 0, 0] S4x1x256
  shapeCasts_S4x1x256_S4x256 : S4x1x256.ShapeCasts S4x256
  bcast_S4x256_S4x256x1_0_1 : S4x256.BroadcastsInDim S4x256x1 (![0, 1] : Fin 2 → Fin S4x256x1.rank)
  slices_S4x512x16_S4x1x16_0_0_0 : S4x512x16.Slices ![0, 0, 0] S4x1x16
  shapeCasts_S4x1x16_S4x16 : S4x1x16.ShapeCasts S4x16
  bcast_S4x16_S4x1x16_0_2 : S4x16.BroadcastsInDim S4x1x16 (![0, 2] : Fin 2 → Fin S4x1x16.rank)
  bcast_S4x256x1_S4x256x16_0_1_2 : S4x256x1.BroadcastsInDim S4x256x16 (![0, 1, 2] : Fin 3 → Fin S4x256x16.rank)
  bcast_S4x1x16_S4x256x16_0_1_2 : S4x1x16.BroadcastsInDim S4x256x16 (![0, 1, 2] : Fin 3 → Fin S4x256x16.rank)
  reducesTo_S4x256x16_S4x256_d2 : S4x256x16.ReducesTo [2] S4x256
  h_S_ : 0 < S_.numel
  bcast_S_S1 : S_.BroadcastsInDim S1 (![] : Fin 0 → Fin S1.rank)
  slices_S4x512x256_S4x1x256_0_1_0 : S4x512x256.Slices ![0, 1, 0] S4x1x256
  slices_S4x512x16_S4x1x16_0_1_0 : S4x512x16.Slices ![0, 1, 0] S4x1x16
  slices_S4x512x256_S4x1x256_0_2_0 : S4x512x256.Slices ![0, 2, 0] S4x1x256
  slices_S4x512x16_S4x1x16_0_2_0 : S4x512x16.Slices ![0, 2, 0] S4x1x16
  slices_S4x512x256_S4x1x256_0_3_0 : S4x512x256.Slices ![0, 3, 0] S4x1x256
  slices_S4x512x16_S4x1x16_0_3_0 : S4x512x16.Slices ![0, 3, 0] S4x1x16
  slices_S4x512x256_S4x1x256_0_4_0 : S4x512x256.Slices ![0, 4, 0] S4x1x256
  slices_S4x512x16_S4x1x16_0_4_0 : S4x512x16.Slices ![0, 4, 0] S4x1x16
  slices_S4x512x256_S4x1x256_0_5_0 : S4x512x256.Slices ![0, 5, 0] S4x1x256
  slices_S4x512x16_S4x1x16_0_5_0 : S4x512x16.Slices ![0, 5, 0] S4x1x16
  slices_S4x512x256_S4x1x256_0_6_0 : S4x512x256.Slices ![0, 6, 0] S4x1x256
  slices_S4x512x16_S4x1x16_0_6_0 : S4x512x16.Slices ![0, 6, 0] S4x1x16
  slices_S4x512x256_S4x1x256_0_7_0 : S4x512x256.Slices ![0, 7, 0] S4x1x256
  slices_S4x512x16_S4x1x16_0_7_0 : S4x512x16.Slices ![0, 7, 0] S4x1x16
  slices_S4x512x256_S4x1x256_0_8_0 : S4x512x256.Slices ![0, 8, 0] S4x1x256
  slices_S4x512x16_S4x1x16_0_8_0 : S4x512x16.Slices ![0, 8, 0] S4x1x16
  slices_S4x512x256_S4x1x256_0_9_0 : S4x512x256.Slices ![0, 9, 0] S4x1x256
  slices_S4x512x16_S4x1x16_0_9_0 : S4x512x16.Slices ![0, 9, 0] S4x1x16
  slices_S4x512x256_S4x1x256_0_10_0 : S4x512x256.Slices ![0, 10, 0] S4x1x256
  slices_S4x512x16_S4x1x16_0_10_0 : S4x512x16.Slices ![0, 10, 0] S4x1x16
  slices_S4x512x256_S4x1x256_0_11_0 : S4x512x256.Slices ![0, 11, 0] S4x1x256
  slices_S4x512x16_S4x1x16_0_11_0 : S4x512x16.Slices ![0, 11, 0] S4x1x16
  slices_S4x512x256_S4x1x256_0_12_0 : S4x512x256.Slices ![0, 12, 0] S4x1x256
  slices_S4x512x16_S4x1x16_0_12_0 : S4x512x16.Slices ![0, 12, 0] S4x1x16
  slices_S4x512x256_S4x1x256_0_13_0 : S4x512x256.Slices ![0, 13, 0] S4x1x256
  slices_S4x512x16_S4x1x16_0_13_0 : S4x512x16.Slices ![0, 13, 0] S4x1x16
  slices_S4x512x256_S4x1x256_0_14_0 : S4x512x256.Slices ![0, 14, 0] S4x1x256
  slices_S4x512x16_S4x1x16_0_14_0 : S4x512x16.Slices ![0, 14, 0] S4x1x16
  slices_S4x512x256_S4x1x256_0_15_0 : S4x512x256.Slices ![0, 15, 0] S4x1x256
  slices_S4x512x16_S4x1x16_0_15_0 : S4x512x16.Slices ![0, 15, 0] S4x1x16
  slices_S4x512x256_S4x1x256_0_16_0 : S4x512x256.Slices ![0, 16, 0] S4x1x256
  slices_S4x512x16_S4x1x16_0_16_0 : S4x512x16.Slices ![0, 16, 0] S4x1x16
  slices_S4x512x256_S4x1x256_0_17_0 : S4x512x256.Slices ![0, 17, 0] S4x1x256
  slices_S4x512x16_S4x1x16_0_17_0 : S4x512x16.Slices ![0, 17, 0] S4x1x16
  slices_S4x512x256_S4x1x256_0_18_0 : S4x512x256.Slices ![0, 18, 0] S4x1x256
  slices_S4x512x16_S4x1x16_0_18_0 : S4x512x16.Slices ![0, 18, 0] S4x1x16
  slices_S4x512x256_S4x1x256_0_19_0 : S4x512x256.Slices ![0, 19, 0] S4x1x256
  slices_S4x512x16_S4x1x16_0_19_0 : S4x512x16.Slices ![0, 19, 0] S4x1x16
  slices_S4x512x256_S4x1x256_0_20_0 : S4x512x256.Slices ![0, 20, 0] S4x1x256
  slices_S4x512x16_S4x1x16_0_20_0 : S4x512x16.Slices ![0, 20, 0] S4x1x16
  slices_S4x512x256_S4x1x256_0_21_0 : S4x512x256.Slices ![0, 21, 0] S4x1x256
  slices_S4x512x16_S4x1x16_0_21_0 : S4x512x16.Slices ![0, 21, 0] S4x1x16
  slices_S4x512x256_S4x1x256_0_22_0 : S4x512x256.Slices ![0, 22, 0] S4x1x256
  slices_S4x512x16_S4x1x16_0_22_0 : S4x512x16.Slices ![0, 22, 0] S4x1x16
  slices_S4x512x256_S4x1x256_0_23_0 : S4x512x256.Slices ![0, 23, 0] S4x1x256
  slices_S4x512x16_S4x1x16_0_23_0 : S4x512x16.Slices ![0, 23, 0] S4x1x16
  slices_S4x512x256_S4x1x256_0_24_0 : S4x512x256.Slices ![0, 24, 0] S4x1x256
  slices_S4x512x16_S4x1x16_0_24_0 : S4x512x16.Slices ![0, 24, 0] S4x1x16
  slices_S4x512x256_S4x1x256_0_25_0 : S4x512x256.Slices ![0, 25, 0] S4x1x256
  slices_S4x512x16_S4x1x16_0_25_0 : S4x512x16.Slices ![0, 25, 0] S4x1x16
  slices_S4x512x256_S4x1x256_0_26_0 : S4x512x256.Slices ![0, 26, 0] S4x1x256
  slices_S4x512x16_S4x1x16_0_26_0 : S4x512x16.Slices ![0, 26, 0] S4x1x16
  slices_S4x512x256_S4x1x256_0_27_0 : S4x512x256.Slices ![0, 27, 0] S4x1x256
  slices_S4x512x16_S4x1x16_0_27_0 : S4x512x16.Slices ![0, 27, 0] S4x1x16
  slices_S4x512x256_S4x1x256_0_28_0 : S4x512x256.Slices ![0, 28, 0] S4x1x256
  slices_S4x512x16_S4x1x16_0_28_0 : S4x512x16.Slices ![0, 28, 0] S4x1x16
  slices_S4x512x256_S4x1x256_0_29_0 : S4x512x256.Slices ![0, 29, 0] S4x1x256
  slices_S4x512x16_S4x1x16_0_29_0 : S4x512x16.Slices ![0, 29, 0] S4x1x16
  slices_S4x512x256_S4x1x256_0_30_0 : S4x512x256.Slices ![0, 30, 0] S4x1x256
  slices_S4x512x16_S4x1x16_0_30_0 : S4x512x16.Slices ![0, 30, 0] S4x1x16
  slices_S4x512x256_S4x1x256_0_31_0 : S4x512x256.Slices ![0, 31, 0] S4x1x256
  slices_S4x512x16_S4x1x16_0_31_0 : S4x512x16.Slices ![0, 31, 0] S4x1x16
  slices_S4x512x256_S4x1x256_0_32_0 : S4x512x256.Slices ![0, 32, 0] S4x1x256
  slices_S4x512x16_S4x1x16_0_32_0 : S4x512x16.Slices ![0, 32, 0] S4x1x16
  slices_S4x512x256_S4x1x256_0_33_0 : S4x512x256.Slices ![0, 33, 0] S4x1x256
  slices_S4x512x16_S4x1x16_0_33_0 : S4x512x16.Slices ![0, 33, 0] S4x1x16
  slices_S4x512x256_S4x1x256_0_34_0 : S4x512x256.Slices ![0, 34, 0] S4x1x256
  slices_S4x512x16_S4x1x16_0_34_0 : S4x512x16.Slices ![0, 34, 0] S4x1x16
  slices_S4x512x256_S4x1x256_0_35_0 : S4x512x256.Slices ![0, 35, 0] S4x1x256
  slices_S4x512x16_S4x1x16_0_35_0 : S4x512x16.Slices ![0, 35, 0] S4x1x16
  slices_S4x512x256_S4x1x256_0_36_0 : S4x512x256.Slices ![0, 36, 0] S4x1x256
  slices_S4x512x16_S4x1x16_0_36_0 : S4x512x16.Slices ![0, 36, 0] S4x1x16
  slices_S4x512x256_S4x1x256_0_37_0 : S4x512x256.Slices ![0, 37, 0] S4x1x256
  slices_S4x512x16_S4x1x16_0_37_0 : S4x512x16.Slices ![0, 37, 0] S4x1x16
  slices_S4x512x256_S4x1x256_0_38_0 : S4x512x256.Slices ![0, 38, 0] S4x1x256
  slices_S4x512x16_S4x1x16_0_38_0 : S4x512x16.Slices ![0, 38, 0] S4x1x16
  slices_S4x512x256_S4x1x256_0_39_0 : S4x512x256.Slices ![0, 39, 0] S4x1x256
  slices_S4x512x16_S4x1x16_0_39_0 : S4x512x16.Slices ![0, 39, 0] S4x1x16
  slices_S4x512x256_S4x1x256_0_40_0 : S4x512x256.Slices ![0, 40, 0] S4x1x256
  slices_S4x512x16_S4x1x16_0_40_0 : S4x512x16.Slices ![0, 40, 0] S4x1x16
  slices_S4x512x256_S4x1x256_0_41_0 : S4x512x256.Slices ![0, 41, 0] S4x1x256
  slices_S4x512x16_S4x1x16_0_41_0 : S4x512x16.Slices ![0, 41, 0] S4x1x16
  slices_S4x512x256_S4x1x256_0_42_0 : S4x512x256.Slices ![0, 42, 0] S4x1x256
  slices_S4x512x16_S4x1x16_0_42_0 : S4x512x16.Slices ![0, 42, 0] S4x1x16
  slices_S4x512x256_S4x1x256_0_43_0 : S4x512x256.Slices ![0, 43, 0] S4x1x256
  slices_S4x512x16_S4x1x16_0_43_0 : S4x512x16.Slices ![0, 43, 0] S4x1x16
  slices_S4x512x256_S4x1x256_0_44_0 : S4x512x256.Slices ![0, 44, 0] S4x1x256
  slices_S4x512x16_S4x1x16_0_44_0 : S4x512x16.Slices ![0, 44, 0] S4x1x16
  slices_S4x512x256_S4x1x256_0_45_0 : S4x512x256.Slices ![0, 45, 0] S4x1x256
  slices_S4x512x16_S4x1x16_0_45_0 : S4x512x16.Slices ![0, 45, 0] S4x1x16
  slices_S4x512x256_S4x1x256_0_46_0 : S4x512x256.Slices ![0, 46, 0] S4x1x256
  slices_S4x512x16_S4x1x16_0_46_0 : S4x512x16.Slices ![0, 46, 0] S4x1x16
  slices_S4x512x256_S4x1x256_0_47_0 : S4x512x256.Slices ![0, 47, 0] S4x1x256
  slices_S4x512x16_S4x1x16_0_47_0 : S4x512x16.Slices ![0, 47, 0] S4x1x16
  slices_S4x512x256_S4x1x256_0_48_0 : S4x512x256.Slices ![0, 48, 0] S4x1x256
  slices_S4x512x16_S4x1x16_0_48_0 : S4x512x16.Slices ![0, 48, 0] S4x1x16
  slices_S4x512x256_S4x1x256_0_49_0 : S4x512x256.Slices ![0, 49, 0] S4x1x256
  slices_S4x512x16_S4x1x16_0_49_0 : S4x512x16.Slices ![0, 49, 0] S4x1x16
  slices_S4x512x256_S4x1x256_0_50_0 : S4x512x256.Slices ![0, 50, 0] S4x1x256
  slices_S4x512x16_S4x1x16_0_50_0 : S4x512x16.Slices ![0, 50, 0] S4x1x16
  slices_S4x512x256_S4x1x256_0_51_0 : S4x512x256.Slices ![0, 51, 0] S4x1x256
  slices_S4x512x16_S4x1x16_0_51_0 : S4x512x16.Slices ![0, 51, 0] S4x1x16
  slices_S4x512x256_S4x1x256_0_52_0 : S4x512x256.Slices ![0, 52, 0] S4x1x256
  slices_S4x512x16_S4x1x16_0_52_0 : S4x512x16.Slices ![0, 52, 0] S4x1x16
  slices_S4x512x256_S4x1x256_0_53_0 : S4x512x256.Slices ![0, 53, 0] S4x1x256
  slices_S4x512x16_S4x1x16_0_53_0 : S4x512x16.Slices ![0, 53, 0] S4x1x16
  slices_S4x512x256_S4x1x256_0_54_0 : S4x512x256.Slices ![0, 54, 0] S4x1x256
  slices_S4x512x16_S4x1x16_0_54_0 : S4x512x16.Slices ![0, 54, 0] S4x1x16
  slices_S4x512x256_S4x1x256_0_55_0 : S4x512x256.Slices ![0, 55, 0] S4x1x256
  slices_S4x512x16_S4x1x16_0_55_0 : S4x512x16.Slices ![0, 55, 0] S4x1x16
  slices_S4x512x256_S4x1x256_0_56_0 : S4x512x256.Slices ![0, 56, 0] S4x1x256
  slices_S4x512x16_S4x1x16_0_56_0 : S4x512x16.Slices ![0, 56, 0] S4x1x16
  slices_S4x512x256_S4x1x256_0_57_0 : S4x512x256.Slices ![0, 57, 0] S4x1x256
  slices_S4x512x16_S4x1x16_0_57_0 : S4x512x16.Slices ![0, 57, 0] S4x1x16
  slices_S4x512x256_S4x1x256_0_58_0 : S4x512x256.Slices ![0, 58, 0] S4x1x256
  slices_S4x512x16_S4x1x16_0_58_0 : S4x512x16.Slices ![0, 58, 0] S4x1x16
  slices_S4x512x256_S4x1x256_0_59_0 : S4x512x256.Slices ![0, 59, 0] S4x1x256
  slices_S4x512x16_S4x1x16_0_59_0 : S4x512x16.Slices ![0, 59, 0] S4x1x16
  slices_S4x512x256_S4x1x256_0_60_0 : S4x512x256.Slices ![0, 60, 0] S4x1x256
  slices_S4x512x16_S4x1x16_0_60_0 : S4x512x16.Slices ![0, 60, 0] S4x1x16
  slices_S4x512x256_S4x1x256_0_61_0 : S4x512x256.Slices ![0, 61, 0] S4x1x256
  slices_S4x512x16_S4x1x16_0_61_0 : S4x512x16.Slices ![0, 61, 0] S4x1x16
  slices_S4x512x256_S4x1x256_0_62_0 : S4x512x256.Slices ![0, 62, 0] S4x1x256
  slices_S4x512x16_S4x1x16_0_62_0 : S4x512x16.Slices ![0, 62, 0] S4x1x16
  slices_S4x512x256_S4x1x256_0_63_0 : S4x512x256.Slices ![0, 63, 0] S4x1x256
  slices_S4x512x16_S4x1x16_0_63_0 : S4x512x16.Slices ![0, 63, 0] S4x1x16
  slices_S4x512x256_S4x1x256_0_64_0 : S4x512x256.Slices ![0, 64, 0] S4x1x256
  slices_S4x512x16_S4x1x16_0_64_0 : S4x512x16.Slices ![0, 64, 0] S4x1x16
  slices_S4x512x256_S4x1x256_0_65_0 : S4x512x256.Slices ![0, 65, 0] S4x1x256
  slices_S4x512x16_S4x1x16_0_65_0 : S4x512x16.Slices ![0, 65, 0] S4x1x16
  slices_S4x512x256_S4x1x256_0_66_0 : S4x512x256.Slices ![0, 66, 0] S4x1x256
  slices_S4x512x16_S4x1x16_0_66_0 : S4x512x16.Slices ![0, 66, 0] S4x1x16
  slices_S4x512x256_S4x1x256_0_67_0 : S4x512x256.Slices ![0, 67, 0] S4x1x256
  slices_S4x512x16_S4x1x16_0_67_0 : S4x512x16.Slices ![0, 67, 0] S4x1x16
  slices_S4x512x256_S4x1x256_0_68_0 : S4x512x256.Slices ![0, 68, 0] S4x1x256
  slices_S4x512x16_S4x1x16_0_68_0 : S4x512x16.Slices ![0, 68, 0] S4x1x16
  slices_S4x512x256_S4x1x256_0_69_0 : S4x512x256.Slices ![0, 69, 0] S4x1x256
  slices_S4x512x16_S4x1x16_0_69_0 : S4x512x16.Slices ![0, 69, 0] S4x1x16
  slices_S4x512x256_S4x1x256_0_70_0 : S4x512x256.Slices ![0, 70, 0] S4x1x256
  slices_S4x512x16_S4x1x16_0_70_0 : S4x512x16.Slices ![0, 70, 0] S4x1x16
  slices_S4x512x256_S4x1x256_0_71_0 : S4x512x256.Slices ![0, 71, 0] S4x1x256
  slices_S4x512x16_S4x1x16_0_71_0 : S4x512x16.Slices ![0, 71, 0] S4x1x16
  slices_S4x512x256_S4x1x256_0_72_0 : S4x512x256.Slices ![0, 72, 0] S4x1x256
  slices_S4x512x16_S4x1x16_0_72_0 : S4x512x16.Slices ![0, 72, 0] S4x1x16
  slices_S4x512x256_S4x1x256_0_73_0 : S4x512x256.Slices ![0, 73, 0] S4x1x256
  slices_S4x512x16_S4x1x16_0_73_0 : S4x512x16.Slices ![0, 73, 0] S4x1x16
  slices_S4x512x256_S4x1x256_0_74_0 : S4x512x256.Slices ![0, 74, 0] S4x1x256
  slices_S4x512x16_S4x1x16_0_74_0 : S4x512x16.Slices ![0, 74, 0] S4x1x16
  slices_S4x512x256_S4x1x256_0_75_0 : S4x512x256.Slices ![0, 75, 0] S4x1x256
  slices_S4x512x16_S4x1x16_0_75_0 : S4x512x16.Slices ![0, 75, 0] S4x1x16
  slices_S4x512x256_S4x1x256_0_76_0 : S4x512x256.Slices ![0, 76, 0] S4x1x256
  slices_S4x512x16_S4x1x16_0_76_0 : S4x512x16.Slices ![0, 76, 0] S4x1x16
  slices_S4x512x256_S4x1x256_0_77_0 : S4x512x256.Slices ![0, 77, 0] S4x1x256
  slices_S4x512x16_S4x1x16_0_77_0 : S4x512x16.Slices ![0, 77, 0] S4x1x16
  slices_S4x512x256_S4x1x256_0_78_0 : S4x512x256.Slices ![0, 78, 0] S4x1x256
  slices_S4x512x16_S4x1x16_0_78_0 : S4x512x16.Slices ![0, 78, 0] S4x1x16
  slices_S4x512x256_S4x1x256_0_79_0 : S4x512x256.Slices ![0, 79, 0] S4x1x256
  slices_S4x512x16_S4x1x16_0_79_0 : S4x512x16.Slices ![0, 79, 0] S4x1x16
  slices_S4x512x256_S4x1x256_0_80_0 : S4x512x256.Slices ![0, 80, 0] S4x1x256
  slices_S4x512x16_S4x1x16_0_80_0 : S4x512x16.Slices ![0, 80, 0] S4x1x16
  slices_S4x512x256_S4x1x256_0_81_0 : S4x512x256.Slices ![0, 81, 0] S4x1x256
  slices_S4x512x16_S4x1x16_0_81_0 : S4x512x16.Slices ![0, 81, 0] S4x1x16
  slices_S4x512x256_S4x1x256_0_82_0 : S4x512x256.Slices ![0, 82, 0] S4x1x256
  slices_S4x512x16_S4x1x16_0_82_0 : S4x512x16.Slices ![0, 82, 0] S4x1x16
  slices_S4x512x256_S4x1x256_0_83_0 : S4x512x256.Slices ![0, 83, 0] S4x1x256
  slices_S4x512x16_S4x1x16_0_83_0 : S4x512x16.Slices ![0, 83, 0] S4x1x16
  slices_S4x512x256_S4x1x256_0_84_0 : S4x512x256.Slices ![0, 84, 0] S4x1x256
  slices_S4x512x16_S4x1x16_0_84_0 : S4x512x16.Slices ![0, 84, 0] S4x1x16
  slices_S4x512x256_S4x1x256_0_85_0 : S4x512x256.Slices ![0, 85, 0] S4x1x256
  slices_S4x512x16_S4x1x16_0_85_0 : S4x512x16.Slices ![0, 85, 0] S4x1x16
  slices_S4x512x256_S4x1x256_0_86_0 : S4x512x256.Slices ![0, 86, 0] S4x1x256
  slices_S4x512x16_S4x1x16_0_86_0 : S4x512x16.Slices ![0, 86, 0] S4x1x16
  slices_S4x512x256_S4x1x256_0_87_0 : S4x512x256.Slices ![0, 87, 0] S4x1x256
  slices_S4x512x16_S4x1x16_0_87_0 : S4x512x16.Slices ![0, 87, 0] S4x1x16
  slices_S4x512x256_S4x1x256_0_88_0 : S4x512x256.Slices ![0, 88, 0] S4x1x256
  slices_S4x512x16_S4x1x16_0_88_0 : S4x512x16.Slices ![0, 88, 0] S4x1x16
  slices_S4x512x256_S4x1x256_0_89_0 : S4x512x256.Slices ![0, 89, 0] S4x1x256
  slices_S4x512x16_S4x1x16_0_89_0 : S4x512x16.Slices ![0, 89, 0] S4x1x16
  slices_S4x512x256_S4x1x256_0_90_0 : S4x512x256.Slices ![0, 90, 0] S4x1x256
  slices_S4x512x16_S4x1x16_0_90_0 : S4x512x16.Slices ![0, 90, 0] S4x1x16
  slices_S4x512x256_S4x1x256_0_91_0 : S4x512x256.Slices ![0, 91, 0] S4x1x256
  slices_S4x512x16_S4x1x16_0_91_0 : S4x512x16.Slices ![0, 91, 0] S4x1x16
  slices_S4x512x256_S4x1x256_0_92_0 : S4x512x256.Slices ![0, 92, 0] S4x1x256
  slices_S4x512x16_S4x1x16_0_92_0 : S4x512x16.Slices ![0, 92, 0] S4x1x16
  slices_S4x512x256_S4x1x256_0_93_0 : S4x512x256.Slices ![0, 93, 0] S4x1x256
  slices_S4x512x16_S4x1x16_0_93_0 : S4x512x16.Slices ![0, 93, 0] S4x1x16
  slices_S4x512x256_S4x1x256_0_94_0 : S4x512x256.Slices ![0, 94, 0] S4x1x256
  slices_S4x512x16_S4x1x16_0_94_0 : S4x512x16.Slices ![0, 94, 0] S4x1x16
  slices_S4x512x256_S4x1x256_0_95_0 : S4x512x256.Slices ![0, 95, 0] S4x1x256
  slices_S4x512x16_S4x1x16_0_95_0 : S4x512x16.Slices ![0, 95, 0] S4x1x16
  slices_S4x512x256_S4x1x256_0_96_0 : S4x512x256.Slices ![0, 96, 0] S4x1x256
  slices_S4x512x16_S4x1x16_0_96_0 : S4x512x16.Slices ![0, 96, 0] S4x1x16
  slices_S4x512x256_S4x1x256_0_97_0 : S4x512x256.Slices ![0, 97, 0] S4x1x256
  slices_S4x512x16_S4x1x16_0_97_0 : S4x512x16.Slices ![0, 97, 0] S4x1x16
  slices_S4x512x256_S4x1x256_0_98_0 : S4x512x256.Slices ![0, 98, 0] S4x1x256
  slices_S4x512x16_S4x1x16_0_98_0 : S4x512x16.Slices ![0, 98, 0] S4x1x16
  slices_S4x512x256_S4x1x256_0_99_0 : S4x512x256.Slices ![0, 99, 0] S4x1x256
  slices_S4x512x16_S4x1x16_0_99_0 : S4x512x16.Slices ![0, 99, 0] S4x1x16
  slices_S4x512x256_S4x1x256_0_100_0 : S4x512x256.Slices ![0, 100, 0] S4x1x256
  slices_S4x512x16_S4x1x16_0_100_0 : S4x512x16.Slices ![0, 100, 0] S4x1x16
  slices_S4x512x256_S4x1x256_0_101_0 : S4x512x256.Slices ![0, 101, 0] S4x1x256
  slices_S4x512x16_S4x1x16_0_101_0 : S4x512x16.Slices ![0, 101, 0] S4x1x16
  slices_S4x512x256_S4x1x256_0_102_0 : S4x512x256.Slices ![0, 102, 0] S4x1x256
  slices_S4x512x16_S4x1x16_0_102_0 : S4x512x16.Slices ![0, 102, 0] S4x1x16
  slices_S4x512x256_S4x1x256_0_103_0 : S4x512x256.Slices ![0, 103, 0] S4x1x256
  slices_S4x512x16_S4x1x16_0_103_0 : S4x512x16.Slices ![0, 103, 0] S4x1x16
  slices_S4x512x256_S4x1x256_0_104_0 : S4x512x256.Slices ![0, 104, 0] S4x1x256
  slices_S4x512x16_S4x1x16_0_104_0 : S4x512x16.Slices ![0, 104, 0] S4x1x16
  slices_S4x512x256_S4x1x256_0_105_0 : S4x512x256.Slices ![0, 105, 0] S4x1x256
  slices_S4x512x16_S4x1x16_0_105_0 : S4x512x16.Slices ![0, 105, 0] S4x1x16
  slices_S4x512x256_S4x1x256_0_106_0 : S4x512x256.Slices ![0, 106, 0] S4x1x256
  slices_S4x512x16_S4x1x16_0_106_0 : S4x512x16.Slices ![0, 106, 0] S4x1x16
  slices_S4x512x256_S4x1x256_0_107_0 : S4x512x256.Slices ![0, 107, 0] S4x1x256
  slices_S4x512x16_S4x1x16_0_107_0 : S4x512x16.Slices ![0, 107, 0] S4x1x16
  slices_S4x512x256_S4x1x256_0_108_0 : S4x512x256.Slices ![0, 108, 0] S4x1x256
  slices_S4x512x16_S4x1x16_0_108_0 : S4x512x16.Slices ![0, 108, 0] S4x1x16
  slices_S4x512x256_S4x1x256_0_109_0 : S4x512x256.Slices ![0, 109, 0] S4x1x256
  slices_S4x512x16_S4x1x16_0_109_0 : S4x512x16.Slices ![0, 109, 0] S4x1x16
  slices_S4x512x256_S4x1x256_0_110_0 : S4x512x256.Slices ![0, 110, 0] S4x1x256
  slices_S4x512x16_S4x1x16_0_110_0 : S4x512x16.Slices ![0, 110, 0] S4x1x16
  slices_S4x512x256_S4x1x256_0_111_0 : S4x512x256.Slices ![0, 111, 0] S4x1x256
  slices_S4x512x16_S4x1x16_0_111_0 : S4x512x16.Slices ![0, 111, 0] S4x1x16
  slices_S4x512x256_S4x1x256_0_112_0 : S4x512x256.Slices ![0, 112, 0] S4x1x256
  slices_S4x512x16_S4x1x16_0_112_0 : S4x512x16.Slices ![0, 112, 0] S4x1x16
  slices_S4x512x256_S4x1x256_0_113_0 : S4x512x256.Slices ![0, 113, 0] S4x1x256
  slices_S4x512x16_S4x1x16_0_113_0 : S4x512x16.Slices ![0, 113, 0] S4x1x16
  slices_S4x512x256_S4x1x256_0_114_0 : S4x512x256.Slices ![0, 114, 0] S4x1x256
  slices_S4x512x16_S4x1x16_0_114_0 : S4x512x16.Slices ![0, 114, 0] S4x1x16
  slices_S4x512x256_S4x1x256_0_115_0 : S4x512x256.Slices ![0, 115, 0] S4x1x256
  slices_S4x512x16_S4x1x16_0_115_0 : S4x512x16.Slices ![0, 115, 0] S4x1x16
  slices_S4x512x256_S4x1x256_0_116_0 : S4x512x256.Slices ![0, 116, 0] S4x1x256
  slices_S4x512x16_S4x1x16_0_116_0 : S4x512x16.Slices ![0, 116, 0] S4x1x16
  slices_S4x512x256_S4x1x256_0_117_0 : S4x512x256.Slices ![0, 117, 0] S4x1x256
  slices_S4x512x16_S4x1x16_0_117_0 : S4x512x16.Slices ![0, 117, 0] S4x1x16
  slices_S4x512x256_S4x1x256_0_118_0 : S4x512x256.Slices ![0, 118, 0] S4x1x256
  slices_S4x512x16_S4x1x16_0_118_0 : S4x512x16.Slices ![0, 118, 0] S4x1x16
  slices_S4x512x256_S4x1x256_0_119_0 : S4x512x256.Slices ![0, 119, 0] S4x1x256
  slices_S4x512x16_S4x1x16_0_119_0 : S4x512x16.Slices ![0, 119, 0] S4x1x16
  slices_S4x512x256_S4x1x256_0_120_0 : S4x512x256.Slices ![0, 120, 0] S4x1x256
  slices_S4x512x16_S4x1x16_0_120_0 : S4x512x16.Slices ![0, 120, 0] S4x1x16
  slices_S4x512x256_S4x1x256_0_121_0 : S4x512x256.Slices ![0, 121, 0] S4x1x256
  slices_S4x512x16_S4x1x16_0_121_0 : S4x512x16.Slices ![0, 121, 0] S4x1x16
  slices_S4x512x256_S4x1x256_0_122_0 : S4x512x256.Slices ![0, 122, 0] S4x1x256
  slices_S4x512x16_S4x1x16_0_122_0 : S4x512x16.Slices ![0, 122, 0] S4x1x16
  slices_S4x512x256_S4x1x256_0_123_0 : S4x512x256.Slices ![0, 123, 0] S4x1x256
  slices_S4x512x16_S4x1x16_0_123_0 : S4x512x16.Slices ![0, 123, 0] S4x1x16
  slices_S4x512x256_S4x1x256_0_124_0 : S4x512x256.Slices ![0, 124, 0] S4x1x256
  slices_S4x512x16_S4x1x16_0_124_0 : S4x512x16.Slices ![0, 124, 0] S4x1x16
  slices_S4x512x256_S4x1x256_0_125_0 : S4x512x256.Slices ![0, 125, 0] S4x1x256
  slices_S4x512x16_S4x1x16_0_125_0 : S4x512x16.Slices ![0, 125, 0] S4x1x16
  slices_S4x512x256_S4x1x256_0_126_0 : S4x512x256.Slices ![0, 126, 0] S4x1x256
  slices_S4x512x16_S4x1x16_0_126_0 : S4x512x16.Slices ![0, 126, 0] S4x1x16
  slices_S4x512x256_S4x1x256_0_127_0 : S4x512x256.Slices ![0, 127, 0] S4x1x256
  slices_S4x512x16_S4x1x16_0_127_0 : S4x512x16.Slices ![0, 127, 0] S4x1x16
  slices_S4x512x256_S4x1x256_0_128_0 : S4x512x256.Slices ![0, 128, 0] S4x1x256
  slices_S4x512x16_S4x1x16_0_128_0 : S4x512x16.Slices ![0, 128, 0] S4x1x16
  slices_S4x512x256_S4x1x256_0_129_0 : S4x512x256.Slices ![0, 129, 0] S4x1x256
  slices_S4x512x16_S4x1x16_0_129_0 : S4x512x16.Slices ![0, 129, 0] S4x1x16
  slices_S4x512x256_S4x1x256_0_130_0 : S4x512x256.Slices ![0, 130, 0] S4x1x256
  slices_S4x512x16_S4x1x16_0_130_0 : S4x512x16.Slices ![0, 130, 0] S4x1x16
  slices_S4x512x256_S4x1x256_0_131_0 : S4x512x256.Slices ![0, 131, 0] S4x1x256
  slices_S4x512x16_S4x1x16_0_131_0 : S4x512x16.Slices ![0, 131, 0] S4x1x16
  slices_S4x512x256_S4x1x256_0_132_0 : S4x512x256.Slices ![0, 132, 0] S4x1x256
  slices_S4x512x16_S4x1x16_0_132_0 : S4x512x16.Slices ![0, 132, 0] S4x1x16
  slices_S4x512x256_S4x1x256_0_133_0 : S4x512x256.Slices ![0, 133, 0] S4x1x256
  slices_S4x512x16_S4x1x16_0_133_0 : S4x512x16.Slices ![0, 133, 0] S4x1x16
  slices_S4x512x256_S4x1x256_0_134_0 : S4x512x256.Slices ![0, 134, 0] S4x1x256
  slices_S4x512x16_S4x1x16_0_134_0 : S4x512x16.Slices ![0, 134, 0] S4x1x16
  slices_S4x512x256_S4x1x256_0_135_0 : S4x512x256.Slices ![0, 135, 0] S4x1x256
  slices_S4x512x16_S4x1x16_0_135_0 : S4x512x16.Slices ![0, 135, 0] S4x1x16
  slices_S4x512x256_S4x1x256_0_136_0 : S4x512x256.Slices ![0, 136, 0] S4x1x256
  slices_S4x512x16_S4x1x16_0_136_0 : S4x512x16.Slices ![0, 136, 0] S4x1x16
  slices_S4x512x256_S4x1x256_0_137_0 : S4x512x256.Slices ![0, 137, 0] S4x1x256
  slices_S4x512x16_S4x1x16_0_137_0 : S4x512x16.Slices ![0, 137, 0] S4x1x16
  slices_S4x512x256_S4x1x256_0_138_0 : S4x512x256.Slices ![0, 138, 0] S4x1x256
  slices_S4x512x16_S4x1x16_0_138_0 : S4x512x16.Slices ![0, 138, 0] S4x1x16
  slices_S4x512x256_S4x1x256_0_139_0 : S4x512x256.Slices ![0, 139, 0] S4x1x256
  slices_S4x512x16_S4x1x16_0_139_0 : S4x512x16.Slices ![0, 139, 0] S4x1x16
  slices_S4x512x256_S4x1x256_0_140_0 : S4x512x256.Slices ![0, 140, 0] S4x1x256
  slices_S4x512x16_S4x1x16_0_140_0 : S4x512x16.Slices ![0, 140, 0] S4x1x16
  slices_S4x512x256_S4x1x256_0_141_0 : S4x512x256.Slices ![0, 141, 0] S4x1x256
  slices_S4x512x16_S4x1x16_0_141_0 : S4x512x16.Slices ![0, 141, 0] S4x1x16
  slices_S4x512x256_S4x1x256_0_142_0 : S4x512x256.Slices ![0, 142, 0] S4x1x256
  slices_S4x512x16_S4x1x16_0_142_0 : S4x512x16.Slices ![0, 142, 0] S4x1x16
  slices_S4x512x256_S4x1x256_0_143_0 : S4x512x256.Slices ![0, 143, 0] S4x1x256
  slices_S4x512x16_S4x1x16_0_143_0 : S4x512x16.Slices ![0, 143, 0] S4x1x16
  slices_S4x512x256_S4x1x256_0_144_0 : S4x512x256.Slices ![0, 144, 0] S4x1x256
  slices_S4x512x16_S4x1x16_0_144_0 : S4x512x16.Slices ![0, 144, 0] S4x1x16
  slices_S4x512x256_S4x1x256_0_145_0 : S4x512x256.Slices ![0, 145, 0] S4x1x256
  slices_S4x512x16_S4x1x16_0_145_0 : S4x512x16.Slices ![0, 145, 0] S4x1x16
  slices_S4x512x256_S4x1x256_0_146_0 : S4x512x256.Slices ![0, 146, 0] S4x1x256
  slices_S4x512x16_S4x1x16_0_146_0 : S4x512x16.Slices ![0, 146, 0] S4x1x16
  slices_S4x512x256_S4x1x256_0_147_0 : S4x512x256.Slices ![0, 147, 0] S4x1x256
  slices_S4x512x16_S4x1x16_0_147_0 : S4x512x16.Slices ![0, 147, 0] S4x1x16
  slices_S4x512x256_S4x1x256_0_148_0 : S4x512x256.Slices ![0, 148, 0] S4x1x256
  slices_S4x512x16_S4x1x16_0_148_0 : S4x512x16.Slices ![0, 148, 0] S4x1x16
  slices_S4x512x256_S4x1x256_0_149_0 : S4x512x256.Slices ![0, 149, 0] S4x1x256
  slices_S4x512x16_S4x1x16_0_149_0 : S4x512x16.Slices ![0, 149, 0] S4x1x16
  slices_S4x512x256_S4x1x256_0_150_0 : S4x512x256.Slices ![0, 150, 0] S4x1x256
  slices_S4x512x16_S4x1x16_0_150_0 : S4x512x16.Slices ![0, 150, 0] S4x1x16
  slices_S4x512x256_S4x1x256_0_151_0 : S4x512x256.Slices ![0, 151, 0] S4x1x256
  slices_S4x512x16_S4x1x16_0_151_0 : S4x512x16.Slices ![0, 151, 0] S4x1x16
  slices_S4x512x256_S4x1x256_0_152_0 : S4x512x256.Slices ![0, 152, 0] S4x1x256
  slices_S4x512x16_S4x1x16_0_152_0 : S4x512x16.Slices ![0, 152, 0] S4x1x16
  slices_S4x512x256_S4x1x256_0_153_0 : S4x512x256.Slices ![0, 153, 0] S4x1x256
  slices_S4x512x16_S4x1x16_0_153_0 : S4x512x16.Slices ![0, 153, 0] S4x1x16
  slices_S4x512x256_S4x1x256_0_154_0 : S4x512x256.Slices ![0, 154, 0] S4x1x256
  slices_S4x512x16_S4x1x16_0_154_0 : S4x512x16.Slices ![0, 154, 0] S4x1x16
  slices_S4x512x256_S4x1x256_0_155_0 : S4x512x256.Slices ![0, 155, 0] S4x1x256
  slices_S4x512x16_S4x1x16_0_155_0 : S4x512x16.Slices ![0, 155, 0] S4x1x16
  slices_S4x512x256_S4x1x256_0_156_0 : S4x512x256.Slices ![0, 156, 0] S4x1x256
  slices_S4x512x16_S4x1x16_0_156_0 : S4x512x16.Slices ![0, 156, 0] S4x1x16
  slices_S4x512x256_S4x1x256_0_157_0 : S4x512x256.Slices ![0, 157, 0] S4x1x256
  slices_S4x512x16_S4x1x16_0_157_0 : S4x512x16.Slices ![0, 157, 0] S4x1x16
  slices_S4x512x256_S4x1x256_0_158_0 : S4x512x256.Slices ![0, 158, 0] S4x1x256
  slices_S4x512x16_S4x1x16_0_158_0 : S4x512x16.Slices ![0, 158, 0] S4x1x16
  slices_S4x512x256_S4x1x256_0_159_0 : S4x512x256.Slices ![0, 159, 0] S4x1x256
  slices_S4x512x16_S4x1x16_0_159_0 : S4x512x16.Slices ![0, 159, 0] S4x1x16
  slices_S4x512x256_S4x1x256_0_160_0 : S4x512x256.Slices ![0, 160, 0] S4x1x256
  slices_S4x512x16_S4x1x16_0_160_0 : S4x512x16.Slices ![0, 160, 0] S4x1x16
  slices_S4x512x256_S4x1x256_0_161_0 : S4x512x256.Slices ![0, 161, 0] S4x1x256
  slices_S4x512x16_S4x1x16_0_161_0 : S4x512x16.Slices ![0, 161, 0] S4x1x16
  slices_S4x512x256_S4x1x256_0_162_0 : S4x512x256.Slices ![0, 162, 0] S4x1x256
  slices_S4x512x16_S4x1x16_0_162_0 : S4x512x16.Slices ![0, 162, 0] S4x1x16
  slices_S4x512x256_S4x1x256_0_163_0 : S4x512x256.Slices ![0, 163, 0] S4x1x256
  slices_S4x512x16_S4x1x16_0_163_0 : S4x512x16.Slices ![0, 163, 0] S4x1x16
  slices_S4x512x256_S4x1x256_0_164_0 : S4x512x256.Slices ![0, 164, 0] S4x1x256
  slices_S4x512x16_S4x1x16_0_164_0 : S4x512x16.Slices ![0, 164, 0] S4x1x16
  slices_S4x512x256_S4x1x256_0_165_0 : S4x512x256.Slices ![0, 165, 0] S4x1x256
  slices_S4x512x16_S4x1x16_0_165_0 : S4x512x16.Slices ![0, 165, 0] S4x1x16
  slices_S4x512x256_S4x1x256_0_166_0 : S4x512x256.Slices ![0, 166, 0] S4x1x256
  slices_S4x512x16_S4x1x16_0_166_0 : S4x512x16.Slices ![0, 166, 0] S4x1x16
  slices_S4x512x256_S4x1x256_0_167_0 : S4x512x256.Slices ![0, 167, 0] S4x1x256
  slices_S4x512x16_S4x1x16_0_167_0 : S4x512x16.Slices ![0, 167, 0] S4x1x16
  slices_S4x512x256_S4x1x256_0_168_0 : S4x512x256.Slices ![0, 168, 0] S4x1x256
  slices_S4x512x16_S4x1x16_0_168_0 : S4x512x16.Slices ![0, 168, 0] S4x1x16
  slices_S4x512x256_S4x1x256_0_169_0 : S4x512x256.Slices ![0, 169, 0] S4x1x256
  slices_S4x512x16_S4x1x16_0_169_0 : S4x512x16.Slices ![0, 169, 0] S4x1x16
  slices_S4x512x256_S4x1x256_0_170_0 : S4x512x256.Slices ![0, 170, 0] S4x1x256
  slices_S4x512x16_S4x1x16_0_170_0 : S4x512x16.Slices ![0, 170, 0] S4x1x16
  slices_S4x512x256_S4x1x256_0_171_0 : S4x512x256.Slices ![0, 171, 0] S4x1x256
  slices_S4x512x16_S4x1x16_0_171_0 : S4x512x16.Slices ![0, 171, 0] S4x1x16
  slices_S4x512x256_S4x1x256_0_172_0 : S4x512x256.Slices ![0, 172, 0] S4x1x256
  slices_S4x512x16_S4x1x16_0_172_0 : S4x512x16.Slices ![0, 172, 0] S4x1x16
  slices_S4x512x256_S4x1x256_0_173_0 : S4x512x256.Slices ![0, 173, 0] S4x1x256
  slices_S4x512x16_S4x1x16_0_173_0 : S4x512x16.Slices ![0, 173, 0] S4x1x16
  slices_S4x512x256_S4x1x256_0_174_0 : S4x512x256.Slices ![0, 174, 0] S4x1x256
  slices_S4x512x16_S4x1x16_0_174_0 : S4x512x16.Slices ![0, 174, 0] S4x1x16
  slices_S4x512x256_S4x1x256_0_175_0 : S4x512x256.Slices ![0, 175, 0] S4x1x256
  slices_S4x512x16_S4x1x16_0_175_0 : S4x512x16.Slices ![0, 175, 0] S4x1x16
  slices_S4x512x256_S4x1x256_0_176_0 : S4x512x256.Slices ![0, 176, 0] S4x1x256
  slices_S4x512x16_S4x1x16_0_176_0 : S4x512x16.Slices ![0, 176, 0] S4x1x16
  slices_S4x512x256_S4x1x256_0_177_0 : S4x512x256.Slices ![0, 177, 0] S4x1x256
  slices_S4x512x16_S4x1x16_0_177_0 : S4x512x16.Slices ![0, 177, 0] S4x1x16
  slices_S4x512x256_S4x1x256_0_178_0 : S4x512x256.Slices ![0, 178, 0] S4x1x256
  slices_S4x512x16_S4x1x16_0_178_0 : S4x512x16.Slices ![0, 178, 0] S4x1x16
  slices_S4x512x256_S4x1x256_0_179_0 : S4x512x256.Slices ![0, 179, 0] S4x1x256
  slices_S4x512x16_S4x1x16_0_179_0 : S4x512x16.Slices ![0, 179, 0] S4x1x16
  slices_S4x512x256_S4x1x256_0_180_0 : S4x512x256.Slices ![0, 180, 0] S4x1x256
  slices_S4x512x16_S4x1x16_0_180_0 : S4x512x16.Slices ![0, 180, 0] S4x1x16
  slices_S4x512x256_S4x1x256_0_181_0 : S4x512x256.Slices ![0, 181, 0] S4x1x256
  slices_S4x512x16_S4x1x16_0_181_0 : S4x512x16.Slices ![0, 181, 0] S4x1x16
  slices_S4x512x256_S4x1x256_0_182_0 : S4x512x256.Slices ![0, 182, 0] S4x1x256
  slices_S4x512x16_S4x1x16_0_182_0 : S4x512x16.Slices ![0, 182, 0] S4x1x16
  slices_S4x512x256_S4x1x256_0_183_0 : S4x512x256.Slices ![0, 183, 0] S4x1x256
  slices_S4x512x16_S4x1x16_0_183_0 : S4x512x16.Slices ![0, 183, 0] S4x1x16
  slices_S4x512x256_S4x1x256_0_184_0 : S4x512x256.Slices ![0, 184, 0] S4x1x256
  slices_S4x512x16_S4x1x16_0_184_0 : S4x512x16.Slices ![0, 184, 0] S4x1x16
  slices_S4x512x256_S4x1x256_0_185_0 : S4x512x256.Slices ![0, 185, 0] S4x1x256
  slices_S4x512x16_S4x1x16_0_185_0 : S4x512x16.Slices ![0, 185, 0] S4x1x16
  slices_S4x512x256_S4x1x256_0_186_0 : S4x512x256.Slices ![0, 186, 0] S4x1x256
  slices_S4x512x16_S4x1x16_0_186_0 : S4x512x16.Slices ![0, 186, 0] S4x1x16
  slices_S4x512x256_S4x1x256_0_187_0 : S4x512x256.Slices ![0, 187, 0] S4x1x256
  slices_S4x512x16_S4x1x16_0_187_0 : S4x512x16.Slices ![0, 187, 0] S4x1x16
  slices_S4x512x256_S4x1x256_0_188_0 : S4x512x256.Slices ![0, 188, 0] S4x1x256
  slices_S4x512x16_S4x1x16_0_188_0 : S4x512x16.Slices ![0, 188, 0] S4x1x16
  slices_S4x512x256_S4x1x256_0_189_0 : S4x512x256.Slices ![0, 189, 0] S4x1x256
  slices_S4x512x16_S4x1x16_0_189_0 : S4x512x16.Slices ![0, 189, 0] S4x1x16
  slices_S4x512x256_S4x1x256_0_190_0 : S4x512x256.Slices ![0, 190, 0] S4x1x256
  slices_S4x512x16_S4x1x16_0_190_0 : S4x512x16.Slices ![0, 190, 0] S4x1x16
  slices_S4x512x256_S4x1x256_0_191_0 : S4x512x256.Slices ![0, 191, 0] S4x1x256
  slices_S4x512x16_S4x1x16_0_191_0 : S4x512x16.Slices ![0, 191, 0] S4x1x16
  slices_S4x512x256_S4x1x256_0_192_0 : S4x512x256.Slices ![0, 192, 0] S4x1x256
  slices_S4x512x16_S4x1x16_0_192_0 : S4x512x16.Slices ![0, 192, 0] S4x1x16
  slices_S4x512x256_S4x1x256_0_193_0 : S4x512x256.Slices ![0, 193, 0] S4x1x256
  slices_S4x512x16_S4x1x16_0_193_0 : S4x512x16.Slices ![0, 193, 0] S4x1x16
  slices_S4x512x256_S4x1x256_0_194_0 : S4x512x256.Slices ![0, 194, 0] S4x1x256
  slices_S4x512x16_S4x1x16_0_194_0 : S4x512x16.Slices ![0, 194, 0] S4x1x16
  slices_S4x512x256_S4x1x256_0_195_0 : S4x512x256.Slices ![0, 195, 0] S4x1x256
  slices_S4x512x16_S4x1x16_0_195_0 : S4x512x16.Slices ![0, 195, 0] S4x1x16
  slices_S4x512x256_S4x1x256_0_196_0 : S4x512x256.Slices ![0, 196, 0] S4x1x256
  slices_S4x512x16_S4x1x16_0_196_0 : S4x512x16.Slices ![0, 196, 0] S4x1x16
  slices_S4x512x256_S4x1x256_0_197_0 : S4x512x256.Slices ![0, 197, 0] S4x1x256
  slices_S4x512x16_S4x1x16_0_197_0 : S4x512x16.Slices ![0, 197, 0] S4x1x16
  slices_S4x512x256_S4x1x256_0_198_0 : S4x512x256.Slices ![0, 198, 0] S4x1x256
  slices_S4x512x16_S4x1x16_0_198_0 : S4x512x16.Slices ![0, 198, 0] S4x1x16
  slices_S4x512x256_S4x1x256_0_199_0 : S4x512x256.Slices ![0, 199, 0] S4x1x256
  slices_S4x512x16_S4x1x16_0_199_0 : S4x512x16.Slices ![0, 199, 0] S4x1x16
  slices_S4x512x256_S4x1x256_0_200_0 : S4x512x256.Slices ![0, 200, 0] S4x1x256
  slices_S4x512x16_S4x1x16_0_200_0 : S4x512x16.Slices ![0, 200, 0] S4x1x16
  slices_S4x512x256_S4x1x256_0_201_0 : S4x512x256.Slices ![0, 201, 0] S4x1x256
  slices_S4x512x16_S4x1x16_0_201_0 : S4x512x16.Slices ![0, 201, 0] S4x1x16
  slices_S4x512x256_S4x1x256_0_202_0 : S4x512x256.Slices ![0, 202, 0] S4x1x256
  slices_S4x512x16_S4x1x16_0_202_0 : S4x512x16.Slices ![0, 202, 0] S4x1x16
  slices_S4x512x256_S4x1x256_0_203_0 : S4x512x256.Slices ![0, 203, 0] S4x1x256
  slices_S4x512x16_S4x1x16_0_203_0 : S4x512x16.Slices ![0, 203, 0] S4x1x16
  slices_S4x512x256_S4x1x256_0_204_0 : S4x512x256.Slices ![0, 204, 0] S4x1x256
  slices_S4x512x16_S4x1x16_0_204_0 : S4x512x16.Slices ![0, 204, 0] S4x1x16
  slices_S4x512x256_S4x1x256_0_205_0 : S4x512x256.Slices ![0, 205, 0] S4x1x256
  slices_S4x512x16_S4x1x16_0_205_0 : S4x512x16.Slices ![0, 205, 0] S4x1x16
  slices_S4x512x256_S4x1x256_0_206_0 : S4x512x256.Slices ![0, 206, 0] S4x1x256
  slices_S4x512x16_S4x1x16_0_206_0 : S4x512x16.Slices ![0, 206, 0] S4x1x16
  slices_S4x512x256_S4x1x256_0_207_0 : S4x512x256.Slices ![0, 207, 0] S4x1x256
  slices_S4x512x16_S4x1x16_0_207_0 : S4x512x16.Slices ![0, 207, 0] S4x1x16
  slices_S4x512x256_S4x1x256_0_208_0 : S4x512x256.Slices ![0, 208, 0] S4x1x256
  slices_S4x512x16_S4x1x16_0_208_0 : S4x512x16.Slices ![0, 208, 0] S4x1x16
  slices_S4x512x256_S4x1x256_0_209_0 : S4x512x256.Slices ![0, 209, 0] S4x1x256
  slices_S4x512x16_S4x1x16_0_209_0 : S4x512x16.Slices ![0, 209, 0] S4x1x16
  slices_S4x512x256_S4x1x256_0_210_0 : S4x512x256.Slices ![0, 210, 0] S4x1x256
  slices_S4x512x16_S4x1x16_0_210_0 : S4x512x16.Slices ![0, 210, 0] S4x1x16
  slices_S4x512x256_S4x1x256_0_211_0 : S4x512x256.Slices ![0, 211, 0] S4x1x256
  slices_S4x512x16_S4x1x16_0_211_0 : S4x512x16.Slices ![0, 211, 0] S4x1x16
  slices_S4x512x256_S4x1x256_0_212_0 : S4x512x256.Slices ![0, 212, 0] S4x1x256
  slices_S4x512x16_S4x1x16_0_212_0 : S4x512x16.Slices ![0, 212, 0] S4x1x16
  slices_S4x512x256_S4x1x256_0_213_0 : S4x512x256.Slices ![0, 213, 0] S4x1x256
  slices_S4x512x16_S4x1x16_0_213_0 : S4x512x16.Slices ![0, 213, 0] S4x1x16
  slices_S4x512x256_S4x1x256_0_214_0 : S4x512x256.Slices ![0, 214, 0] S4x1x256
  slices_S4x512x16_S4x1x16_0_214_0 : S4x512x16.Slices ![0, 214, 0] S4x1x16
  slices_S4x512x256_S4x1x256_0_215_0 : S4x512x256.Slices ![0, 215, 0] S4x1x256
  slices_S4x512x16_S4x1x16_0_215_0 : S4x512x16.Slices ![0, 215, 0] S4x1x16
  slices_S4x512x256_S4x1x256_0_216_0 : S4x512x256.Slices ![0, 216, 0] S4x1x256
  slices_S4x512x16_S4x1x16_0_216_0 : S4x512x16.Slices ![0, 216, 0] S4x1x16
  slices_S4x512x256_S4x1x256_0_217_0 : S4x512x256.Slices ![0, 217, 0] S4x1x256
  slices_S4x512x16_S4x1x16_0_217_0 : S4x512x16.Slices ![0, 217, 0] S4x1x16
  slices_S4x512x256_S4x1x256_0_218_0 : S4x512x256.Slices ![0, 218, 0] S4x1x256
  slices_S4x512x16_S4x1x16_0_218_0 : S4x512x16.Slices ![0, 218, 0] S4x1x16
  slices_S4x512x256_S4x1x256_0_219_0 : S4x512x256.Slices ![0, 219, 0] S4x1x256
  slices_S4x512x16_S4x1x16_0_219_0 : S4x512x16.Slices ![0, 219, 0] S4x1x16
  slices_S4x512x256_S4x1x256_0_220_0 : S4x512x256.Slices ![0, 220, 0] S4x1x256
  slices_S4x512x16_S4x1x16_0_220_0 : S4x512x16.Slices ![0, 220, 0] S4x1x16
  slices_S4x512x256_S4x1x256_0_221_0 : S4x512x256.Slices ![0, 221, 0] S4x1x256
  slices_S4x512x16_S4x1x16_0_221_0 : S4x512x16.Slices ![0, 221, 0] S4x1x16
  slices_S4x512x256_S4x1x256_0_222_0 : S4x512x256.Slices ![0, 222, 0] S4x1x256
  slices_S4x512x16_S4x1x16_0_222_0 : S4x512x16.Slices ![0, 222, 0] S4x1x16
  slices_S4x512x256_S4x1x256_0_223_0 : S4x512x256.Slices ![0, 223, 0] S4x1x256
  slices_S4x512x16_S4x1x16_0_223_0 : S4x512x16.Slices ![0, 223, 0] S4x1x16
  slices_S4x512x256_S4x1x256_0_224_0 : S4x512x256.Slices ![0, 224, 0] S4x1x256
  slices_S4x512x16_S4x1x16_0_224_0 : S4x512x16.Slices ![0, 224, 0] S4x1x16
  slices_S4x512x256_S4x1x256_0_225_0 : S4x512x256.Slices ![0, 225, 0] S4x1x256
  slices_S4x512x16_S4x1x16_0_225_0 : S4x512x16.Slices ![0, 225, 0] S4x1x16
  slices_S4x512x256_S4x1x256_0_226_0 : S4x512x256.Slices ![0, 226, 0] S4x1x256
  slices_S4x512x16_S4x1x16_0_226_0 : S4x512x16.Slices ![0, 226, 0] S4x1x16
  slices_S4x512x256_S4x1x256_0_227_0 : S4x512x256.Slices ![0, 227, 0] S4x1x256
  slices_S4x512x16_S4x1x16_0_227_0 : S4x512x16.Slices ![0, 227, 0] S4x1x16
  slices_S4x512x256_S4x1x256_0_228_0 : S4x512x256.Slices ![0, 228, 0] S4x1x256
  slices_S4x512x16_S4x1x16_0_228_0 : S4x512x16.Slices ![0, 228, 0] S4x1x16
  slices_S4x512x256_S4x1x256_0_229_0 : S4x512x256.Slices ![0, 229, 0] S4x1x256
  slices_S4x512x16_S4x1x16_0_229_0 : S4x512x16.Slices ![0, 229, 0] S4x1x16
  slices_S4x512x256_S4x1x256_0_230_0 : S4x512x256.Slices ![0, 230, 0] S4x1x256
  slices_S4x512x16_S4x1x16_0_230_0 : S4x512x16.Slices ![0, 230, 0] S4x1x16
  slices_S4x512x256_S4x1x256_0_231_0 : S4x512x256.Slices ![0, 231, 0] S4x1x256
  slices_S4x512x16_S4x1x16_0_231_0 : S4x512x16.Slices ![0, 231, 0] S4x1x16
  slices_S4x512x256_S4x1x256_0_232_0 : S4x512x256.Slices ![0, 232, 0] S4x1x256
  slices_S4x512x16_S4x1x16_0_232_0 : S4x512x16.Slices ![0, 232, 0] S4x1x16
  slices_S4x512x256_S4x1x256_0_233_0 : S4x512x256.Slices ![0, 233, 0] S4x1x256
  slices_S4x512x16_S4x1x16_0_233_0 : S4x512x16.Slices ![0, 233, 0] S4x1x16
  slices_S4x512x256_S4x1x256_0_234_0 : S4x512x256.Slices ![0, 234, 0] S4x1x256
  slices_S4x512x16_S4x1x16_0_234_0 : S4x512x16.Slices ![0, 234, 0] S4x1x16
  slices_S4x512x256_S4x1x256_0_235_0 : S4x512x256.Slices ![0, 235, 0] S4x1x256
  slices_S4x512x16_S4x1x16_0_235_0 : S4x512x16.Slices ![0, 235, 0] S4x1x16
  slices_S4x512x256_S4x1x256_0_236_0 : S4x512x256.Slices ![0, 236, 0] S4x1x256
  slices_S4x512x16_S4x1x16_0_236_0 : S4x512x16.Slices ![0, 236, 0] S4x1x16
  slices_S4x512x256_S4x1x256_0_237_0 : S4x512x256.Slices ![0, 237, 0] S4x1x256
  slices_S4x512x16_S4x1x16_0_237_0 : S4x512x16.Slices ![0, 237, 0] S4x1x16
  slices_S4x512x256_S4x1x256_0_238_0 : S4x512x256.Slices ![0, 238, 0] S4x1x256
  slices_S4x512x16_S4x1x16_0_238_0 : S4x512x16.Slices ![0, 238, 0] S4x1x16
  slices_S4x512x256_S4x1x256_0_239_0 : S4x512x256.Slices ![0, 239, 0] S4x1x256
  slices_S4x512x16_S4x1x16_0_239_0 : S4x512x16.Slices ![0, 239, 0] S4x1x16
  slices_S4x512x256_S4x1x256_0_240_0 : S4x512x256.Slices ![0, 240, 0] S4x1x256
  slices_S4x512x16_S4x1x16_0_240_0 : S4x512x16.Slices ![0, 240, 0] S4x1x16
  slices_S4x512x256_S4x1x256_0_241_0 : S4x512x256.Slices ![0, 241, 0] S4x1x256
  slices_S4x512x16_S4x1x16_0_241_0 : S4x512x16.Slices ![0, 241, 0] S4x1x16
  slices_S4x512x256_S4x1x256_0_242_0 : S4x512x256.Slices ![0, 242, 0] S4x1x256
  slices_S4x512x16_S4x1x16_0_242_0 : S4x512x16.Slices ![0, 242, 0] S4x1x16
  slices_S4x512x256_S4x1x256_0_243_0 : S4x512x256.Slices ![0, 243, 0] S4x1x256
  slices_S4x512x16_S4x1x16_0_243_0 : S4x512x16.Slices ![0, 243, 0] S4x1x16
  slices_S4x512x256_S4x1x256_0_244_0 : S4x512x256.Slices ![0, 244, 0] S4x1x256
  slices_S4x512x16_S4x1x16_0_244_0 : S4x512x16.Slices ![0, 244, 0] S4x1x16
  slices_S4x512x256_S4x1x256_0_245_0 : S4x512x256.Slices ![0, 245, 0] S4x1x256
  slices_S4x512x16_S4x1x16_0_245_0 : S4x512x16.Slices ![0, 245, 0] S4x1x16
  slices_S4x512x256_S4x1x256_0_246_0 : S4x512x256.Slices ![0, 246, 0] S4x1x256
  slices_S4x512x16_S4x1x16_0_246_0 : S4x512x16.Slices ![0, 246, 0] S4x1x16
  slices_S4x512x256_S4x1x256_0_247_0 : S4x512x256.Slices ![0, 247, 0] S4x1x256
  slices_S4x512x16_S4x1x16_0_247_0 : S4x512x16.Slices ![0, 247, 0] S4x1x16
  slices_S4x512x256_S4x1x256_0_248_0 : S4x512x256.Slices ![0, 248, 0] S4x1x256
  slices_S4x512x16_S4x1x16_0_248_0 : S4x512x16.Slices ![0, 248, 0] S4x1x16
  slices_S4x512x256_S4x1x256_0_249_0 : S4x512x256.Slices ![0, 249, 0] S4x1x256
  slices_S4x512x16_S4x1x16_0_249_0 : S4x512x16.Slices ![0, 249, 0] S4x1x16
  slices_S4x512x256_S4x1x256_0_250_0 : S4x512x256.Slices ![0, 250, 0] S4x1x256
  slices_S4x512x16_S4x1x16_0_250_0 : S4x512x16.Slices ![0, 250, 0] S4x1x16
  slices_S4x512x256_S4x1x256_0_251_0 : S4x512x256.Slices ![0, 251, 0] S4x1x256
  slices_S4x512x16_S4x1x16_0_251_0 : S4x512x16.Slices ![0, 251, 0] S4x1x16
  slices_S4x512x256_S4x1x256_0_252_0 : S4x512x256.Slices ![0, 252, 0] S4x1x256
  slices_S4x512x16_S4x1x16_0_252_0 : S4x512x16.Slices ![0, 252, 0] S4x1x16
  slices_S4x512x256_S4x1x256_0_253_0 : S4x512x256.Slices ![0, 253, 0] S4x1x256
  slices_S4x512x16_S4x1x16_0_253_0 : S4x512x16.Slices ![0, 253, 0] S4x1x16
  slices_S4x512x256_S4x1x256_0_254_0 : S4x512x256.Slices ![0, 254, 0] S4x1x256
  slices_S4x512x16_S4x1x16_0_254_0 : S4x512x16.Slices ![0, 254, 0] S4x1x16
  slices_S4x512x256_S4x1x256_0_255_0 : S4x512x256.Slices ![0, 255, 0] S4x1x256
  slices_S4x512x16_S4x1x16_0_255_0 : S4x512x16.Slices ![0, 255, 0] S4x1x16
  slices_S4x512x256_S4x1x256_0_256_0 : S4x512x256.Slices ![0, 256, 0] S4x1x256
  slices_S4x512x16_S4x1x16_0_256_0 : S4x512x16.Slices ![0, 256, 0] S4x1x16
  slices_S4x512x256_S4x1x256_0_257_0 : S4x512x256.Slices ![0, 257, 0] S4x1x256
  slices_S4x512x16_S4x1x16_0_257_0 : S4x512x16.Slices ![0, 257, 0] S4x1x16
  slices_S4x512x256_S4x1x256_0_258_0 : S4x512x256.Slices ![0, 258, 0] S4x1x256
  slices_S4x512x16_S4x1x16_0_258_0 : S4x512x16.Slices ![0, 258, 0] S4x1x16
  slices_S4x512x256_S4x1x256_0_259_0 : S4x512x256.Slices ![0, 259, 0] S4x1x256
  slices_S4x512x16_S4x1x16_0_259_0 : S4x512x16.Slices ![0, 259, 0] S4x1x16
  slices_S4x512x256_S4x1x256_0_260_0 : S4x512x256.Slices ![0, 260, 0] S4x1x256
  slices_S4x512x16_S4x1x16_0_260_0 : S4x512x16.Slices ![0, 260, 0] S4x1x16
  slices_S4x512x256_S4x1x256_0_261_0 : S4x512x256.Slices ![0, 261, 0] S4x1x256
  slices_S4x512x16_S4x1x16_0_261_0 : S4x512x16.Slices ![0, 261, 0] S4x1x16
  slices_S4x512x256_S4x1x256_0_262_0 : S4x512x256.Slices ![0, 262, 0] S4x1x256
  slices_S4x512x16_S4x1x16_0_262_0 : S4x512x16.Slices ![0, 262, 0] S4x1x16
  slices_S4x512x256_S4x1x256_0_263_0 : S4x512x256.Slices ![0, 263, 0] S4x1x256
  slices_S4x512x16_S4x1x16_0_263_0 : S4x512x16.Slices ![0, 263, 0] S4x1x16
  slices_S4x512x256_S4x1x256_0_264_0 : S4x512x256.Slices ![0, 264, 0] S4x1x256
  slices_S4x512x16_S4x1x16_0_264_0 : S4x512x16.Slices ![0, 264, 0] S4x1x16
  slices_S4x512x256_S4x1x256_0_265_0 : S4x512x256.Slices ![0, 265, 0] S4x1x256
  slices_S4x512x16_S4x1x16_0_265_0 : S4x512x16.Slices ![0, 265, 0] S4x1x16
  slices_S4x512x256_S4x1x256_0_266_0 : S4x512x256.Slices ![0, 266, 0] S4x1x256
  slices_S4x512x16_S4x1x16_0_266_0 : S4x512x16.Slices ![0, 266, 0] S4x1x16
  slices_S4x512x256_S4x1x256_0_267_0 : S4x512x256.Slices ![0, 267, 0] S4x1x256
  slices_S4x512x16_S4x1x16_0_267_0 : S4x512x16.Slices ![0, 267, 0] S4x1x16
  slices_S4x512x256_S4x1x256_0_268_0 : S4x512x256.Slices ![0, 268, 0] S4x1x256
  slices_S4x512x16_S4x1x16_0_268_0 : S4x512x16.Slices ![0, 268, 0] S4x1x16
  slices_S4x512x256_S4x1x256_0_269_0 : S4x512x256.Slices ![0, 269, 0] S4x1x256
  slices_S4x512x16_S4x1x16_0_269_0 : S4x512x16.Slices ![0, 269, 0] S4x1x16
  slices_S4x512x256_S4x1x256_0_270_0 : S4x512x256.Slices ![0, 270, 0] S4x1x256
  slices_S4x512x16_S4x1x16_0_270_0 : S4x512x16.Slices ![0, 270, 0] S4x1x16
  slices_S4x512x256_S4x1x256_0_271_0 : S4x512x256.Slices ![0, 271, 0] S4x1x256
  slices_S4x512x16_S4x1x16_0_271_0 : S4x512x16.Slices ![0, 271, 0] S4x1x16
  slices_S4x512x256_S4x1x256_0_272_0 : S4x512x256.Slices ![0, 272, 0] S4x1x256
  slices_S4x512x16_S4x1x16_0_272_0 : S4x512x16.Slices ![0, 272, 0] S4x1x16
  slices_S4x512x256_S4x1x256_0_273_0 : S4x512x256.Slices ![0, 273, 0] S4x1x256
  slices_S4x512x16_S4x1x16_0_273_0 : S4x512x16.Slices ![0, 273, 0] S4x1x16
  slices_S4x512x256_S4x1x256_0_274_0 : S4x512x256.Slices ![0, 274, 0] S4x1x256
  slices_S4x512x16_S4x1x16_0_274_0 : S4x512x16.Slices ![0, 274, 0] S4x1x16
  slices_S4x512x256_S4x1x256_0_275_0 : S4x512x256.Slices ![0, 275, 0] S4x1x256
  slices_S4x512x16_S4x1x16_0_275_0 : S4x512x16.Slices ![0, 275, 0] S4x1x16
  slices_S4x512x256_S4x1x256_0_276_0 : S4x512x256.Slices ![0, 276, 0] S4x1x256
  slices_S4x512x16_S4x1x16_0_276_0 : S4x512x16.Slices ![0, 276, 0] S4x1x16
  slices_S4x512x256_S4x1x256_0_277_0 : S4x512x256.Slices ![0, 277, 0] S4x1x256
  slices_S4x512x16_S4x1x16_0_277_0 : S4x512x16.Slices ![0, 277, 0] S4x1x16
  slices_S4x512x256_S4x1x256_0_278_0 : S4x512x256.Slices ![0, 278, 0] S4x1x256
  slices_S4x512x16_S4x1x16_0_278_0 : S4x512x16.Slices ![0, 278, 0] S4x1x16
  slices_S4x512x256_S4x1x256_0_279_0 : S4x512x256.Slices ![0, 279, 0] S4x1x256
  slices_S4x512x16_S4x1x16_0_279_0 : S4x512x16.Slices ![0, 279, 0] S4x1x16
  slices_S4x512x256_S4x1x256_0_280_0 : S4x512x256.Slices ![0, 280, 0] S4x1x256
  slices_S4x512x16_S4x1x16_0_280_0 : S4x512x16.Slices ![0, 280, 0] S4x1x16
  slices_S4x512x256_S4x1x256_0_281_0 : S4x512x256.Slices ![0, 281, 0] S4x1x256
  slices_S4x512x16_S4x1x16_0_281_0 : S4x512x16.Slices ![0, 281, 0] S4x1x16
  slices_S4x512x256_S4x1x256_0_282_0 : S4x512x256.Slices ![0, 282, 0] S4x1x256
  slices_S4x512x16_S4x1x16_0_282_0 : S4x512x16.Slices ![0, 282, 0] S4x1x16
  slices_S4x512x256_S4x1x256_0_283_0 : S4x512x256.Slices ![0, 283, 0] S4x1x256
  slices_S4x512x16_S4x1x16_0_283_0 : S4x512x16.Slices ![0, 283, 0] S4x1x16
  slices_S4x512x256_S4x1x256_0_284_0 : S4x512x256.Slices ![0, 284, 0] S4x1x256
  slices_S4x512x16_S4x1x16_0_284_0 : S4x512x16.Slices ![0, 284, 0] S4x1x16
  slices_S4x512x256_S4x1x256_0_285_0 : S4x512x256.Slices ![0, 285, 0] S4x1x256
  slices_S4x512x16_S4x1x16_0_285_0 : S4x512x16.Slices ![0, 285, 0] S4x1x16
  slices_S4x512x256_S4x1x256_0_286_0 : S4x512x256.Slices ![0, 286, 0] S4x1x256
  slices_S4x512x16_S4x1x16_0_286_0 : S4x512x16.Slices ![0, 286, 0] S4x1x16
  slices_S4x512x256_S4x1x256_0_287_0 : S4x512x256.Slices ![0, 287, 0] S4x1x256
  slices_S4x512x16_S4x1x16_0_287_0 : S4x512x16.Slices ![0, 287, 0] S4x1x16
  slices_S4x512x256_S4x1x256_0_288_0 : S4x512x256.Slices ![0, 288, 0] S4x1x256
  slices_S4x512x16_S4x1x16_0_288_0 : S4x512x16.Slices ![0, 288, 0] S4x1x16
  slices_S4x512x256_S4x1x256_0_289_0 : S4x512x256.Slices ![0, 289, 0] S4x1x256
  slices_S4x512x16_S4x1x16_0_289_0 : S4x512x16.Slices ![0, 289, 0] S4x1x16
  slices_S4x512x256_S4x1x256_0_290_0 : S4x512x256.Slices ![0, 290, 0] S4x1x256
  slices_S4x512x16_S4x1x16_0_290_0 : S4x512x16.Slices ![0, 290, 0] S4x1x16
  slices_S4x512x256_S4x1x256_0_291_0 : S4x512x256.Slices ![0, 291, 0] S4x1x256
  slices_S4x512x16_S4x1x16_0_291_0 : S4x512x16.Slices ![0, 291, 0] S4x1x16
  slices_S4x512x256_S4x1x256_0_292_0 : S4x512x256.Slices ![0, 292, 0] S4x1x256
  slices_S4x512x16_S4x1x16_0_292_0 : S4x512x16.Slices ![0, 292, 0] S4x1x16
  slices_S4x512x256_S4x1x256_0_293_0 : S4x512x256.Slices ![0, 293, 0] S4x1x256
  slices_S4x512x16_S4x1x16_0_293_0 : S4x512x16.Slices ![0, 293, 0] S4x1x16
  slices_S4x512x256_S4x1x256_0_294_0 : S4x512x256.Slices ![0, 294, 0] S4x1x256
  slices_S4x512x16_S4x1x16_0_294_0 : S4x512x16.Slices ![0, 294, 0] S4x1x16
  slices_S4x512x256_S4x1x256_0_295_0 : S4x512x256.Slices ![0, 295, 0] S4x1x256
  slices_S4x512x16_S4x1x16_0_295_0 : S4x512x16.Slices ![0, 295, 0] S4x1x16
  slices_S4x512x256_S4x1x256_0_296_0 : S4x512x256.Slices ![0, 296, 0] S4x1x256
  slices_S4x512x16_S4x1x16_0_296_0 : S4x512x16.Slices ![0, 296, 0] S4x1x16
  slices_S4x512x256_S4x1x256_0_297_0 : S4x512x256.Slices ![0, 297, 0] S4x1x256
  slices_S4x512x16_S4x1x16_0_297_0 : S4x512x16.Slices ![0, 297, 0] S4x1x16
  slices_S4x512x256_S4x1x256_0_298_0 : S4x512x256.Slices ![0, 298, 0] S4x1x256
  slices_S4x512x16_S4x1x16_0_298_0 : S4x512x16.Slices ![0, 298, 0] S4x1x16
  slices_S4x512x256_S4x1x256_0_299_0 : S4x512x256.Slices ![0, 299, 0] S4x1x256
  slices_S4x512x16_S4x1x16_0_299_0 : S4x512x16.Slices ![0, 299, 0] S4x1x16
  slices_S4x512x256_S4x1x256_0_300_0 : S4x512x256.Slices ![0, 300, 0] S4x1x256
  slices_S4x512x16_S4x1x16_0_300_0 : S4x512x16.Slices ![0, 300, 0] S4x1x16
  slices_S4x512x256_S4x1x256_0_301_0 : S4x512x256.Slices ![0, 301, 0] S4x1x256
  slices_S4x512x16_S4x1x16_0_301_0 : S4x512x16.Slices ![0, 301, 0] S4x1x16
  slices_S4x512x256_S4x1x256_0_302_0 : S4x512x256.Slices ![0, 302, 0] S4x1x256
  slices_S4x512x16_S4x1x16_0_302_0 : S4x512x16.Slices ![0, 302, 0] S4x1x16
  slices_S4x512x256_S4x1x256_0_303_0 : S4x512x256.Slices ![0, 303, 0] S4x1x256
  slices_S4x512x16_S4x1x16_0_303_0 : S4x512x16.Slices ![0, 303, 0] S4x1x16
  slices_S4x512x256_S4x1x256_0_304_0 : S4x512x256.Slices ![0, 304, 0] S4x1x256
  slices_S4x512x16_S4x1x16_0_304_0 : S4x512x16.Slices ![0, 304, 0] S4x1x16
  slices_S4x512x256_S4x1x256_0_305_0 : S4x512x256.Slices ![0, 305, 0] S4x1x256
  slices_S4x512x16_S4x1x16_0_305_0 : S4x512x16.Slices ![0, 305, 0] S4x1x16
  slices_S4x512x256_S4x1x256_0_306_0 : S4x512x256.Slices ![0, 306, 0] S4x1x256
  slices_S4x512x16_S4x1x16_0_306_0 : S4x512x16.Slices ![0, 306, 0] S4x1x16
  slices_S4x512x256_S4x1x256_0_307_0 : S4x512x256.Slices ![0, 307, 0] S4x1x256
  slices_S4x512x16_S4x1x16_0_307_0 : S4x512x16.Slices ![0, 307, 0] S4x1x16
  slices_S4x512x256_S4x1x256_0_308_0 : S4x512x256.Slices ![0, 308, 0] S4x1x256
  slices_S4x512x16_S4x1x16_0_308_0 : S4x512x16.Slices ![0, 308, 0] S4x1x16
  slices_S4x512x256_S4x1x256_0_309_0 : S4x512x256.Slices ![0, 309, 0] S4x1x256
  slices_S4x512x16_S4x1x16_0_309_0 : S4x512x16.Slices ![0, 309, 0] S4x1x16
  slices_S4x512x256_S4x1x256_0_310_0 : S4x512x256.Slices ![0, 310, 0] S4x1x256
  slices_S4x512x16_S4x1x16_0_310_0 : S4x512x16.Slices ![0, 310, 0] S4x1x16
  slices_S4x512x256_S4x1x256_0_311_0 : S4x512x256.Slices ![0, 311, 0] S4x1x256
  slices_S4x512x16_S4x1x16_0_311_0 : S4x512x16.Slices ![0, 311, 0] S4x1x16
  slices_S4x512x256_S4x1x256_0_312_0 : S4x512x256.Slices ![0, 312, 0] S4x1x256
  slices_S4x512x16_S4x1x16_0_312_0 : S4x512x16.Slices ![0, 312, 0] S4x1x16
  slices_S4x512x256_S4x1x256_0_313_0 : S4x512x256.Slices ![0, 313, 0] S4x1x256
  slices_S4x512x16_S4x1x16_0_313_0 : S4x512x16.Slices ![0, 313, 0] S4x1x16
  slices_S4x512x256_S4x1x256_0_314_0 : S4x512x256.Slices ![0, 314, 0] S4x1x256
  slices_S4x512x16_S4x1x16_0_314_0 : S4x512x16.Slices ![0, 314, 0] S4x1x16
  slices_S4x512x256_S4x1x256_0_315_0 : S4x512x256.Slices ![0, 315, 0] S4x1x256
  slices_S4x512x16_S4x1x16_0_315_0 : S4x512x16.Slices ![0, 315, 0] S4x1x16
  slices_S4x512x256_S4x1x256_0_316_0 : S4x512x256.Slices ![0, 316, 0] S4x1x256
  slices_S4x512x16_S4x1x16_0_316_0 : S4x512x16.Slices ![0, 316, 0] S4x1x16
  slices_S4x512x256_S4x1x256_0_317_0 : S4x512x256.Slices ![0, 317, 0] S4x1x256
  slices_S4x512x16_S4x1x16_0_317_0 : S4x512x16.Slices ![0, 317, 0] S4x1x16
  slices_S4x512x256_S4x1x256_0_318_0 : S4x512x256.Slices ![0, 318, 0] S4x1x256
  slices_S4x512x16_S4x1x16_0_318_0 : S4x512x16.Slices ![0, 318, 0] S4x1x16
  slices_S4x512x256_S4x1x256_0_319_0 : S4x512x256.Slices ![0, 319, 0] S4x1x256
  slices_S4x512x16_S4x1x16_0_319_0 : S4x512x16.Slices ![0, 319, 0] S4x1x16
  slices_S4x512x256_S4x1x256_0_320_0 : S4x512x256.Slices ![0, 320, 0] S4x1x256
  slices_S4x512x16_S4x1x16_0_320_0 : S4x512x16.Slices ![0, 320, 0] S4x1x16
  slices_S4x512x256_S4x1x256_0_321_0 : S4x512x256.Slices ![0, 321, 0] S4x1x256
  slices_S4x512x16_S4x1x16_0_321_0 : S4x512x16.Slices ![0, 321, 0] S4x1x16
  slices_S4x512x256_S4x1x256_0_322_0 : S4x512x256.Slices ![0, 322, 0] S4x1x256
  slices_S4x512x16_S4x1x16_0_322_0 : S4x512x16.Slices ![0, 322, 0] S4x1x16
  slices_S4x512x256_S4x1x256_0_323_0 : S4x512x256.Slices ![0, 323, 0] S4x1x256
  slices_S4x512x16_S4x1x16_0_323_0 : S4x512x16.Slices ![0, 323, 0] S4x1x16
  slices_S4x512x256_S4x1x256_0_324_0 : S4x512x256.Slices ![0, 324, 0] S4x1x256
  slices_S4x512x16_S4x1x16_0_324_0 : S4x512x16.Slices ![0, 324, 0] S4x1x16
  slices_S4x512x256_S4x1x256_0_325_0 : S4x512x256.Slices ![0, 325, 0] S4x1x256
  slices_S4x512x16_S4x1x16_0_325_0 : S4x512x16.Slices ![0, 325, 0] S4x1x16
  slices_S4x512x256_S4x1x256_0_326_0 : S4x512x256.Slices ![0, 326, 0] S4x1x256
  slices_S4x512x16_S4x1x16_0_326_0 : S4x512x16.Slices ![0, 326, 0] S4x1x16
  slices_S4x512x256_S4x1x256_0_327_0 : S4x512x256.Slices ![0, 327, 0] S4x1x256
  slices_S4x512x16_S4x1x16_0_327_0 : S4x512x16.Slices ![0, 327, 0] S4x1x16
  slices_S4x512x256_S4x1x256_0_328_0 : S4x512x256.Slices ![0, 328, 0] S4x1x256
  slices_S4x512x16_S4x1x16_0_328_0 : S4x512x16.Slices ![0, 328, 0] S4x1x16
  slices_S4x512x256_S4x1x256_0_329_0 : S4x512x256.Slices ![0, 329, 0] S4x1x256
  slices_S4x512x16_S4x1x16_0_329_0 : S4x512x16.Slices ![0, 329, 0] S4x1x16
  slices_S4x512x256_S4x1x256_0_330_0 : S4x512x256.Slices ![0, 330, 0] S4x1x256
  slices_S4x512x16_S4x1x16_0_330_0 : S4x512x16.Slices ![0, 330, 0] S4x1x16
  slices_S4x512x256_S4x1x256_0_331_0 : S4x512x256.Slices ![0, 331, 0] S4x1x256
  slices_S4x512x16_S4x1x16_0_331_0 : S4x512x16.Slices ![0, 331, 0] S4x1x16
  slices_S4x512x256_S4x1x256_0_332_0 : S4x512x256.Slices ![0, 332, 0] S4x1x256
  slices_S4x512x16_S4x1x16_0_332_0 : S4x512x16.Slices ![0, 332, 0] S4x1x16
  slices_S4x512x256_S4x1x256_0_333_0 : S4x512x256.Slices ![0, 333, 0] S4x1x256
  slices_S4x512x16_S4x1x16_0_333_0 : S4x512x16.Slices ![0, 333, 0] S4x1x16
  slices_S4x512x256_S4x1x256_0_334_0 : S4x512x256.Slices ![0, 334, 0] S4x1x256
  slices_S4x512x16_S4x1x16_0_334_0 : S4x512x16.Slices ![0, 334, 0] S4x1x16
  slices_S4x512x256_S4x1x256_0_335_0 : S4x512x256.Slices ![0, 335, 0] S4x1x256
  slices_S4x512x16_S4x1x16_0_335_0 : S4x512x16.Slices ![0, 335, 0] S4x1x16
  slices_S4x512x256_S4x1x256_0_336_0 : S4x512x256.Slices ![0, 336, 0] S4x1x256
  slices_S4x512x16_S4x1x16_0_336_0 : S4x512x16.Slices ![0, 336, 0] S4x1x16
  slices_S4x512x256_S4x1x256_0_337_0 : S4x512x256.Slices ![0, 337, 0] S4x1x256
  slices_S4x512x16_S4x1x16_0_337_0 : S4x512x16.Slices ![0, 337, 0] S4x1x16
  slices_S4x512x256_S4x1x256_0_338_0 : S4x512x256.Slices ![0, 338, 0] S4x1x256
  slices_S4x512x16_S4x1x16_0_338_0 : S4x512x16.Slices ![0, 338, 0] S4x1x16
  slices_S4x512x256_S4x1x256_0_339_0 : S4x512x256.Slices ![0, 339, 0] S4x1x256
  slices_S4x512x16_S4x1x16_0_339_0 : S4x512x16.Slices ![0, 339, 0] S4x1x16
  slices_S4x512x256_S4x1x256_0_340_0 : S4x512x256.Slices ![0, 340, 0] S4x1x256
  slices_S4x512x16_S4x1x16_0_340_0 : S4x512x16.Slices ![0, 340, 0] S4x1x16
  slices_S4x512x256_S4x1x256_0_341_0 : S4x512x256.Slices ![0, 341, 0] S4x1x256
  slices_S4x512x16_S4x1x16_0_341_0 : S4x512x16.Slices ![0, 341, 0] S4x1x16
  slices_S4x512x256_S4x1x256_0_342_0 : S4x512x256.Slices ![0, 342, 0] S4x1x256
  slices_S4x512x16_S4x1x16_0_342_0 : S4x512x16.Slices ![0, 342, 0] S4x1x16
  slices_S4x512x256_S4x1x256_0_343_0 : S4x512x256.Slices ![0, 343, 0] S4x1x256
  slices_S4x512x16_S4x1x16_0_343_0 : S4x512x16.Slices ![0, 343, 0] S4x1x16
  slices_S4x512x256_S4x1x256_0_344_0 : S4x512x256.Slices ![0, 344, 0] S4x1x256
  slices_S4x512x16_S4x1x16_0_344_0 : S4x512x16.Slices ![0, 344, 0] S4x1x16
  slices_S4x512x256_S4x1x256_0_345_0 : S4x512x256.Slices ![0, 345, 0] S4x1x256
  slices_S4x512x16_S4x1x16_0_345_0 : S4x512x16.Slices ![0, 345, 0] S4x1x16
  slices_S4x512x256_S4x1x256_0_346_0 : S4x512x256.Slices ![0, 346, 0] S4x1x256
  slices_S4x512x16_S4x1x16_0_346_0 : S4x512x16.Slices ![0, 346, 0] S4x1x16
  slices_S4x512x256_S4x1x256_0_347_0 : S4x512x256.Slices ![0, 347, 0] S4x1x256
  slices_S4x512x16_S4x1x16_0_347_0 : S4x512x16.Slices ![0, 347, 0] S4x1x16
  slices_S4x512x256_S4x1x256_0_348_0 : S4x512x256.Slices ![0, 348, 0] S4x1x256
  slices_S4x512x16_S4x1x16_0_348_0 : S4x512x16.Slices ![0, 348, 0] S4x1x16
  slices_S4x512x256_S4x1x256_0_349_0 : S4x512x256.Slices ![0, 349, 0] S4x1x256
  slices_S4x512x16_S4x1x16_0_349_0 : S4x512x16.Slices ![0, 349, 0] S4x1x16
  slices_S4x512x256_S4x1x256_0_350_0 : S4x512x256.Slices ![0, 350, 0] S4x1x256
  slices_S4x512x16_S4x1x16_0_350_0 : S4x512x16.Slices ![0, 350, 0] S4x1x16
  slices_S4x512x256_S4x1x256_0_351_0 : S4x512x256.Slices ![0, 351, 0] S4x1x256
  slices_S4x512x16_S4x1x16_0_351_0 : S4x512x16.Slices ![0, 351, 0] S4x1x16
  slices_S4x512x256_S4x1x256_0_352_0 : S4x512x256.Slices ![0, 352, 0] S4x1x256
  slices_S4x512x16_S4x1x16_0_352_0 : S4x512x16.Slices ![0, 352, 0] S4x1x16
  slices_S4x512x256_S4x1x256_0_353_0 : S4x512x256.Slices ![0, 353, 0] S4x1x256
  slices_S4x512x16_S4x1x16_0_353_0 : S4x512x16.Slices ![0, 353, 0] S4x1x16
  slices_S4x512x256_S4x1x256_0_354_0 : S4x512x256.Slices ![0, 354, 0] S4x1x256
  slices_S4x512x16_S4x1x16_0_354_0 : S4x512x16.Slices ![0, 354, 0] S4x1x16
  slices_S4x512x256_S4x1x256_0_355_0 : S4x512x256.Slices ![0, 355, 0] S4x1x256
  slices_S4x512x16_S4x1x16_0_355_0 : S4x512x16.Slices ![0, 355, 0] S4x1x16
  slices_S4x512x256_S4x1x256_0_356_0 : S4x512x256.Slices ![0, 356, 0] S4x1x256
  slices_S4x512x16_S4x1x16_0_356_0 : S4x512x16.Slices ![0, 356, 0] S4x1x16
  slices_S4x512x256_S4x1x256_0_357_0 : S4x512x256.Slices ![0, 357, 0] S4x1x256
  slices_S4x512x16_S4x1x16_0_357_0 : S4x512x16.Slices ![0, 357, 0] S4x1x16
  slices_S4x512x256_S4x1x256_0_358_0 : S4x512x256.Slices ![0, 358, 0] S4x1x256
  slices_S4x512x16_S4x1x16_0_358_0 : S4x512x16.Slices ![0, 358, 0] S4x1x16
  slices_S4x512x256_S4x1x256_0_359_0 : S4x512x256.Slices ![0, 359, 0] S4x1x256
  slices_S4x512x16_S4x1x16_0_359_0 : S4x512x16.Slices ![0, 359, 0] S4x1x16
  slices_S4x512x256_S4x1x256_0_360_0 : S4x512x256.Slices ![0, 360, 0] S4x1x256
  slices_S4x512x16_S4x1x16_0_360_0 : S4x512x16.Slices ![0, 360, 0] S4x1x16
  slices_S4x512x256_S4x1x256_0_361_0 : S4x512x256.Slices ![0, 361, 0] S4x1x256
  slices_S4x512x16_S4x1x16_0_361_0 : S4x512x16.Slices ![0, 361, 0] S4x1x16
  slices_S4x512x256_S4x1x256_0_362_0 : S4x512x256.Slices ![0, 362, 0] S4x1x256
  slices_S4x512x16_S4x1x16_0_362_0 : S4x512x16.Slices ![0, 362, 0] S4x1x16
  slices_S4x512x256_S4x1x256_0_363_0 : S4x512x256.Slices ![0, 363, 0] S4x1x256
  slices_S4x512x16_S4x1x16_0_363_0 : S4x512x16.Slices ![0, 363, 0] S4x1x16
  slices_S4x512x256_S4x1x256_0_364_0 : S4x512x256.Slices ![0, 364, 0] S4x1x256
  slices_S4x512x16_S4x1x16_0_364_0 : S4x512x16.Slices ![0, 364, 0] S4x1x16
  slices_S4x512x256_S4x1x256_0_365_0 : S4x512x256.Slices ![0, 365, 0] S4x1x256
  slices_S4x512x16_S4x1x16_0_365_0 : S4x512x16.Slices ![0, 365, 0] S4x1x16
  slices_S4x512x256_S4x1x256_0_366_0 : S4x512x256.Slices ![0, 366, 0] S4x1x256
  slices_S4x512x16_S4x1x16_0_366_0 : S4x512x16.Slices ![0, 366, 0] S4x1x16
  slices_S4x512x256_S4x1x256_0_367_0 : S4x512x256.Slices ![0, 367, 0] S4x1x256
  slices_S4x512x16_S4x1x16_0_367_0 : S4x512x16.Slices ![0, 367, 0] S4x1x16
  slices_S4x512x256_S4x1x256_0_368_0 : S4x512x256.Slices ![0, 368, 0] S4x1x256
  slices_S4x512x16_S4x1x16_0_368_0 : S4x512x16.Slices ![0, 368, 0] S4x1x16
  slices_S4x512x256_S4x1x256_0_369_0 : S4x512x256.Slices ![0, 369, 0] S4x1x256
  slices_S4x512x16_S4x1x16_0_369_0 : S4x512x16.Slices ![0, 369, 0] S4x1x16
  slices_S4x512x256_S4x1x256_0_370_0 : S4x512x256.Slices ![0, 370, 0] S4x1x256
  slices_S4x512x16_S4x1x16_0_370_0 : S4x512x16.Slices ![0, 370, 0] S4x1x16
  slices_S4x512x256_S4x1x256_0_371_0 : S4x512x256.Slices ![0, 371, 0] S4x1x256
  slices_S4x512x16_S4x1x16_0_371_0 : S4x512x16.Slices ![0, 371, 0] S4x1x16
  slices_S4x512x256_S4x1x256_0_372_0 : S4x512x256.Slices ![0, 372, 0] S4x1x256
  slices_S4x512x16_S4x1x16_0_372_0 : S4x512x16.Slices ![0, 372, 0] S4x1x16
  slices_S4x512x256_S4x1x256_0_373_0 : S4x512x256.Slices ![0, 373, 0] S4x1x256
  slices_S4x512x16_S4x1x16_0_373_0 : S4x512x16.Slices ![0, 373, 0] S4x1x16
  slices_S4x512x256_S4x1x256_0_374_0 : S4x512x256.Slices ![0, 374, 0] S4x1x256
  slices_S4x512x16_S4x1x16_0_374_0 : S4x512x16.Slices ![0, 374, 0] S4x1x16
  slices_S4x512x256_S4x1x256_0_375_0 : S4x512x256.Slices ![0, 375, 0] S4x1x256
  slices_S4x512x16_S4x1x16_0_375_0 : S4x512x16.Slices ![0, 375, 0] S4x1x16
  slices_S4x512x256_S4x1x256_0_376_0 : S4x512x256.Slices ![0, 376, 0] S4x1x256
  slices_S4x512x16_S4x1x16_0_376_0 : S4x512x16.Slices ![0, 376, 0] S4x1x16
  slices_S4x512x256_S4x1x256_0_377_0 : S4x512x256.Slices ![0, 377, 0] S4x1x256
  slices_S4x512x16_S4x1x16_0_377_0 : S4x512x16.Slices ![0, 377, 0] S4x1x16
  slices_S4x512x256_S4x1x256_0_378_0 : S4x512x256.Slices ![0, 378, 0] S4x1x256
  slices_S4x512x16_S4x1x16_0_378_0 : S4x512x16.Slices ![0, 378, 0] S4x1x16
  slices_S4x512x256_S4x1x256_0_379_0 : S4x512x256.Slices ![0, 379, 0] S4x1x256
  slices_S4x512x16_S4x1x16_0_379_0 : S4x512x16.Slices ![0, 379, 0] S4x1x16
  slices_S4x512x256_S4x1x256_0_380_0 : S4x512x256.Slices ![0, 380, 0] S4x1x256
  slices_S4x512x16_S4x1x16_0_380_0 : S4x512x16.Slices ![0, 380, 0] S4x1x16
  slices_S4x512x256_S4x1x256_0_381_0 : S4x512x256.Slices ![0, 381, 0] S4x1x256
  slices_S4x512x16_S4x1x16_0_381_0 : S4x512x16.Slices ![0, 381, 0] S4x1x16
  slices_S4x512x256_S4x1x256_0_382_0 : S4x512x256.Slices ![0, 382, 0] S4x1x256
  slices_S4x512x16_S4x1x16_0_382_0 : S4x512x16.Slices ![0, 382, 0] S4x1x16
  slices_S4x512x256_S4x1x256_0_383_0 : S4x512x256.Slices ![0, 383, 0] S4x1x256
  slices_S4x512x16_S4x1x16_0_383_0 : S4x512x16.Slices ![0, 383, 0] S4x1x16
  slices_S4x512x256_S4x1x256_0_384_0 : S4x512x256.Slices ![0, 384, 0] S4x1x256
  slices_S4x512x16_S4x1x16_0_384_0 : S4x512x16.Slices ![0, 384, 0] S4x1x16
  slices_S4x512x256_S4x1x256_0_385_0 : S4x512x256.Slices ![0, 385, 0] S4x1x256
  slices_S4x512x16_S4x1x16_0_385_0 : S4x512x16.Slices ![0, 385, 0] S4x1x16
  slices_S4x512x256_S4x1x256_0_386_0 : S4x512x256.Slices ![0, 386, 0] S4x1x256
  slices_S4x512x16_S4x1x16_0_386_0 : S4x512x16.Slices ![0, 386, 0] S4x1x16
  slices_S4x512x256_S4x1x256_0_387_0 : S4x512x256.Slices ![0, 387, 0] S4x1x256
  slices_S4x512x16_S4x1x16_0_387_0 : S4x512x16.Slices ![0, 387, 0] S4x1x16
  slices_S4x512x256_S4x1x256_0_388_0 : S4x512x256.Slices ![0, 388, 0] S4x1x256
  slices_S4x512x16_S4x1x16_0_388_0 : S4x512x16.Slices ![0, 388, 0] S4x1x16
  slices_S4x512x256_S4x1x256_0_389_0 : S4x512x256.Slices ![0, 389, 0] S4x1x256
  slices_S4x512x16_S4x1x16_0_389_0 : S4x512x16.Slices ![0, 389, 0] S4x1x16
  slices_S4x512x256_S4x1x256_0_390_0 : S4x512x256.Slices ![0, 390, 0] S4x1x256
  slices_S4x512x16_S4x1x16_0_390_0 : S4x512x16.Slices ![0, 390, 0] S4x1x16
  slices_S4x512x256_S4x1x256_0_391_0 : S4x512x256.Slices ![0, 391, 0] S4x1x256
  slices_S4x512x16_S4x1x16_0_391_0 : S4x512x16.Slices ![0, 391, 0] S4x1x16
  slices_S4x512x256_S4x1x256_0_392_0 : S4x512x256.Slices ![0, 392, 0] S4x1x256
  slices_S4x512x16_S4x1x16_0_392_0 : S4x512x16.Slices ![0, 392, 0] S4x1x16
  slices_S4x512x256_S4x1x256_0_393_0 : S4x512x256.Slices ![0, 393, 0] S4x1x256
  slices_S4x512x16_S4x1x16_0_393_0 : S4x512x16.Slices ![0, 393, 0] S4x1x16
  slices_S4x512x256_S4x1x256_0_394_0 : S4x512x256.Slices ![0, 394, 0] S4x1x256
  slices_S4x512x16_S4x1x16_0_394_0 : S4x512x16.Slices ![0, 394, 0] S4x1x16
  slices_S4x512x256_S4x1x256_0_395_0 : S4x512x256.Slices ![0, 395, 0] S4x1x256
  slices_S4x512x16_S4x1x16_0_395_0 : S4x512x16.Slices ![0, 395, 0] S4x1x16
  slices_S4x512x256_S4x1x256_0_396_0 : S4x512x256.Slices ![0, 396, 0] S4x1x256
  slices_S4x512x16_S4x1x16_0_396_0 : S4x512x16.Slices ![0, 396, 0] S4x1x16
  slices_S4x512x256_S4x1x256_0_397_0 : S4x512x256.Slices ![0, 397, 0] S4x1x256
  slices_S4x512x16_S4x1x16_0_397_0 : S4x512x16.Slices ![0, 397, 0] S4x1x16
  slices_S4x512x256_S4x1x256_0_398_0 : S4x512x256.Slices ![0, 398, 0] S4x1x256
  slices_S4x512x16_S4x1x16_0_398_0 : S4x512x16.Slices ![0, 398, 0] S4x1x16
  slices_S4x512x256_S4x1x256_0_399_0 : S4x512x256.Slices ![0, 399, 0] S4x1x256
  slices_S4x512x16_S4x1x16_0_399_0 : S4x512x16.Slices ![0, 399, 0] S4x1x16
  slices_S4x512x256_S4x1x256_0_400_0 : S4x512x256.Slices ![0, 400, 0] S4x1x256
  slices_S4x512x16_S4x1x16_0_400_0 : S4x512x16.Slices ![0, 400, 0] S4x1x16
  slices_S4x512x256_S4x1x256_0_401_0 : S4x512x256.Slices ![0, 401, 0] S4x1x256
  slices_S4x512x16_S4x1x16_0_401_0 : S4x512x16.Slices ![0, 401, 0] S4x1x16
  slices_S4x512x256_S4x1x256_0_402_0 : S4x512x256.Slices ![0, 402, 0] S4x1x256
  slices_S4x512x16_S4x1x16_0_402_0 : S4x512x16.Slices ![0, 402, 0] S4x1x16
  slices_S4x512x256_S4x1x256_0_403_0 : S4x512x256.Slices ![0, 403, 0] S4x1x256
  slices_S4x512x16_S4x1x16_0_403_0 : S4x512x16.Slices ![0, 403, 0] S4x1x16
  slices_S4x512x256_S4x1x256_0_404_0 : S4x512x256.Slices ![0, 404, 0] S4x1x256
  slices_S4x512x16_S4x1x16_0_404_0 : S4x512x16.Slices ![0, 404, 0] S4x1x16
  slices_S4x512x256_S4x1x256_0_405_0 : S4x512x256.Slices ![0, 405, 0] S4x1x256
  slices_S4x512x16_S4x1x16_0_405_0 : S4x512x16.Slices ![0, 405, 0] S4x1x16
  slices_S4x512x256_S4x1x256_0_406_0 : S4x512x256.Slices ![0, 406, 0] S4x1x256
  slices_S4x512x16_S4x1x16_0_406_0 : S4x512x16.Slices ![0, 406, 0] S4x1x16
  slices_S4x512x256_S4x1x256_0_407_0 : S4x512x256.Slices ![0, 407, 0] S4x1x256
  slices_S4x512x16_S4x1x16_0_407_0 : S4x512x16.Slices ![0, 407, 0] S4x1x16
  slices_S4x512x256_S4x1x256_0_408_0 : S4x512x256.Slices ![0, 408, 0] S4x1x256
  slices_S4x512x16_S4x1x16_0_408_0 : S4x512x16.Slices ![0, 408, 0] S4x1x16
  slices_S4x512x256_S4x1x256_0_409_0 : S4x512x256.Slices ![0, 409, 0] S4x1x256
  slices_S4x512x16_S4x1x16_0_409_0 : S4x512x16.Slices ![0, 409, 0] S4x1x16
  slices_S4x512x256_S4x1x256_0_410_0 : S4x512x256.Slices ![0, 410, 0] S4x1x256
  slices_S4x512x16_S4x1x16_0_410_0 : S4x512x16.Slices ![0, 410, 0] S4x1x16
  slices_S4x512x256_S4x1x256_0_411_0 : S4x512x256.Slices ![0, 411, 0] S4x1x256
  slices_S4x512x16_S4x1x16_0_411_0 : S4x512x16.Slices ![0, 411, 0] S4x1x16
  slices_S4x512x256_S4x1x256_0_412_0 : S4x512x256.Slices ![0, 412, 0] S4x1x256
  slices_S4x512x16_S4x1x16_0_412_0 : S4x512x16.Slices ![0, 412, 0] S4x1x16
  slices_S4x512x256_S4x1x256_0_413_0 : S4x512x256.Slices ![0, 413, 0] S4x1x256
  slices_S4x512x16_S4x1x16_0_413_0 : S4x512x16.Slices ![0, 413, 0] S4x1x16
  slices_S4x512x256_S4x1x256_0_414_0 : S4x512x256.Slices ![0, 414, 0] S4x1x256
  slices_S4x512x16_S4x1x16_0_414_0 : S4x512x16.Slices ![0, 414, 0] S4x1x16
  slices_S4x512x256_S4x1x256_0_415_0 : S4x512x256.Slices ![0, 415, 0] S4x1x256
  slices_S4x512x16_S4x1x16_0_415_0 : S4x512x16.Slices ![0, 415, 0] S4x1x16
  slices_S4x512x256_S4x1x256_0_416_0 : S4x512x256.Slices ![0, 416, 0] S4x1x256
  slices_S4x512x16_S4x1x16_0_416_0 : S4x512x16.Slices ![0, 416, 0] S4x1x16
  slices_S4x512x256_S4x1x256_0_417_0 : S4x512x256.Slices ![0, 417, 0] S4x1x256
  slices_S4x512x16_S4x1x16_0_417_0 : S4x512x16.Slices ![0, 417, 0] S4x1x16
  slices_S4x512x256_S4x1x256_0_418_0 : S4x512x256.Slices ![0, 418, 0] S4x1x256
  slices_S4x512x16_S4x1x16_0_418_0 : S4x512x16.Slices ![0, 418, 0] S4x1x16
  slices_S4x512x256_S4x1x256_0_419_0 : S4x512x256.Slices ![0, 419, 0] S4x1x256
  slices_S4x512x16_S4x1x16_0_419_0 : S4x512x16.Slices ![0, 419, 0] S4x1x16
  slices_S4x512x256_S4x1x256_0_420_0 : S4x512x256.Slices ![0, 420, 0] S4x1x256
  slices_S4x512x16_S4x1x16_0_420_0 : S4x512x16.Slices ![0, 420, 0] S4x1x16
  slices_S4x512x256_S4x1x256_0_421_0 : S4x512x256.Slices ![0, 421, 0] S4x1x256
  slices_S4x512x16_S4x1x16_0_421_0 : S4x512x16.Slices ![0, 421, 0] S4x1x16
  slices_S4x512x256_S4x1x256_0_422_0 : S4x512x256.Slices ![0, 422, 0] S4x1x256
  slices_S4x512x16_S4x1x16_0_422_0 : S4x512x16.Slices ![0, 422, 0] S4x1x16
  slices_S4x512x256_S4x1x256_0_423_0 : S4x512x256.Slices ![0, 423, 0] S4x1x256
  slices_S4x512x16_S4x1x16_0_423_0 : S4x512x16.Slices ![0, 423, 0] S4x1x16
  slices_S4x512x256_S4x1x256_0_424_0 : S4x512x256.Slices ![0, 424, 0] S4x1x256
  slices_S4x512x16_S4x1x16_0_424_0 : S4x512x16.Slices ![0, 424, 0] S4x1x16
  slices_S4x512x256_S4x1x256_0_425_0 : S4x512x256.Slices ![0, 425, 0] S4x1x256
  slices_S4x512x16_S4x1x16_0_425_0 : S4x512x16.Slices ![0, 425, 0] S4x1x16
  slices_S4x512x256_S4x1x256_0_426_0 : S4x512x256.Slices ![0, 426, 0] S4x1x256
  slices_S4x512x16_S4x1x16_0_426_0 : S4x512x16.Slices ![0, 426, 0] S4x1x16
  slices_S4x512x256_S4x1x256_0_427_0 : S4x512x256.Slices ![0, 427, 0] S4x1x256
  slices_S4x512x16_S4x1x16_0_427_0 : S4x512x16.Slices ![0, 427, 0] S4x1x16
  slices_S4x512x256_S4x1x256_0_428_0 : S4x512x256.Slices ![0, 428, 0] S4x1x256
  slices_S4x512x16_S4x1x16_0_428_0 : S4x512x16.Slices ![0, 428, 0] S4x1x16
  slices_S4x512x256_S4x1x256_0_429_0 : S4x512x256.Slices ![0, 429, 0] S4x1x256
  slices_S4x512x16_S4x1x16_0_429_0 : S4x512x16.Slices ![0, 429, 0] S4x1x16
  slices_S4x512x256_S4x1x256_0_430_0 : S4x512x256.Slices ![0, 430, 0] S4x1x256
  slices_S4x512x16_S4x1x16_0_430_0 : S4x512x16.Slices ![0, 430, 0] S4x1x16
  slices_S4x512x256_S4x1x256_0_431_0 : S4x512x256.Slices ![0, 431, 0] S4x1x256
  slices_S4x512x16_S4x1x16_0_431_0 : S4x512x16.Slices ![0, 431, 0] S4x1x16
  slices_S4x512x256_S4x1x256_0_432_0 : S4x512x256.Slices ![0, 432, 0] S4x1x256
  slices_S4x512x16_S4x1x16_0_432_0 : S4x512x16.Slices ![0, 432, 0] S4x1x16
  slices_S4x512x256_S4x1x256_0_433_0 : S4x512x256.Slices ![0, 433, 0] S4x1x256
  slices_S4x512x16_S4x1x16_0_433_0 : S4x512x16.Slices ![0, 433, 0] S4x1x16
  slices_S4x512x256_S4x1x256_0_434_0 : S4x512x256.Slices ![0, 434, 0] S4x1x256
  slices_S4x512x16_S4x1x16_0_434_0 : S4x512x16.Slices ![0, 434, 0] S4x1x16
  slices_S4x512x256_S4x1x256_0_435_0 : S4x512x256.Slices ![0, 435, 0] S4x1x256
  slices_S4x512x16_S4x1x16_0_435_0 : S4x512x16.Slices ![0, 435, 0] S4x1x16
  slices_S4x512x256_S4x1x256_0_436_0 : S4x512x256.Slices ![0, 436, 0] S4x1x256
  slices_S4x512x16_S4x1x16_0_436_0 : S4x512x16.Slices ![0, 436, 0] S4x1x16
  slices_S4x512x256_S4x1x256_0_437_0 : S4x512x256.Slices ![0, 437, 0] S4x1x256
  slices_S4x512x16_S4x1x16_0_437_0 : S4x512x16.Slices ![0, 437, 0] S4x1x16
  slices_S4x512x256_S4x1x256_0_438_0 : S4x512x256.Slices ![0, 438, 0] S4x1x256
  slices_S4x512x16_S4x1x16_0_438_0 : S4x512x16.Slices ![0, 438, 0] S4x1x16
  slices_S4x512x256_S4x1x256_0_439_0 : S4x512x256.Slices ![0, 439, 0] S4x1x256
  slices_S4x512x16_S4x1x16_0_439_0 : S4x512x16.Slices ![0, 439, 0] S4x1x16
  slices_S4x512x256_S4x1x256_0_440_0 : S4x512x256.Slices ![0, 440, 0] S4x1x256
  slices_S4x512x16_S4x1x16_0_440_0 : S4x512x16.Slices ![0, 440, 0] S4x1x16
  slices_S4x512x256_S4x1x256_0_441_0 : S4x512x256.Slices ![0, 441, 0] S4x1x256
  slices_S4x512x16_S4x1x16_0_441_0 : S4x512x16.Slices ![0, 441, 0] S4x1x16
  slices_S4x512x256_S4x1x256_0_442_0 : S4x512x256.Slices ![0, 442, 0] S4x1x256
  slices_S4x512x16_S4x1x16_0_442_0 : S4x512x16.Slices ![0, 442, 0] S4x1x16
  slices_S4x512x256_S4x1x256_0_443_0 : S4x512x256.Slices ![0, 443, 0] S4x1x256
  slices_S4x512x16_S4x1x16_0_443_0 : S4x512x16.Slices ![0, 443, 0] S4x1x16
  slices_S4x512x256_S4x1x256_0_444_0 : S4x512x256.Slices ![0, 444, 0] S4x1x256
  slices_S4x512x16_S4x1x16_0_444_0 : S4x512x16.Slices ![0, 444, 0] S4x1x16
  slices_S4x512x256_S4x1x256_0_445_0 : S4x512x256.Slices ![0, 445, 0] S4x1x256
  slices_S4x512x16_S4x1x16_0_445_0 : S4x512x16.Slices ![0, 445, 0] S4x1x16
  slices_S4x512x256_S4x1x256_0_446_0 : S4x512x256.Slices ![0, 446, 0] S4x1x256
  slices_S4x512x16_S4x1x16_0_446_0 : S4x512x16.Slices ![0, 446, 0] S4x1x16
  slices_S4x512x256_S4x1x256_0_447_0 : S4x512x256.Slices ![0, 447, 0] S4x1x256
  slices_S4x512x16_S4x1x16_0_447_0 : S4x512x16.Slices ![0, 447, 0] S4x1x16
  slices_S4x512x256_S4x1x256_0_448_0 : S4x512x256.Slices ![0, 448, 0] S4x1x256
  slices_S4x512x16_S4x1x16_0_448_0 : S4x512x16.Slices ![0, 448, 0] S4x1x16
  slices_S4x512x256_S4x1x256_0_449_0 : S4x512x256.Slices ![0, 449, 0] S4x1x256
  slices_S4x512x16_S4x1x16_0_449_0 : S4x512x16.Slices ![0, 449, 0] S4x1x16
  slices_S4x512x256_S4x1x256_0_450_0 : S4x512x256.Slices ![0, 450, 0] S4x1x256
  slices_S4x512x16_S4x1x16_0_450_0 : S4x512x16.Slices ![0, 450, 0] S4x1x16
  slices_S4x512x256_S4x1x256_0_451_0 : S4x512x256.Slices ![0, 451, 0] S4x1x256
  slices_S4x512x16_S4x1x16_0_451_0 : S4x512x16.Slices ![0, 451, 0] S4x1x16
  slices_S4x512x256_S4x1x256_0_452_0 : S4x512x256.Slices ![0, 452, 0] S4x1x256
  slices_S4x512x16_S4x1x16_0_452_0 : S4x512x16.Slices ![0, 452, 0] S4x1x16
  slices_S4x512x256_S4x1x256_0_453_0 : S4x512x256.Slices ![0, 453, 0] S4x1x256
  slices_S4x512x16_S4x1x16_0_453_0 : S4x512x16.Slices ![0, 453, 0] S4x1x16
  slices_S4x512x256_S4x1x256_0_454_0 : S4x512x256.Slices ![0, 454, 0] S4x1x256
  slices_S4x512x16_S4x1x16_0_454_0 : S4x512x16.Slices ![0, 454, 0] S4x1x16
  slices_S4x512x256_S4x1x256_0_455_0 : S4x512x256.Slices ![0, 455, 0] S4x1x256
  slices_S4x512x16_S4x1x16_0_455_0 : S4x512x16.Slices ![0, 455, 0] S4x1x16
  slices_S4x512x256_S4x1x256_0_456_0 : S4x512x256.Slices ![0, 456, 0] S4x1x256
  slices_S4x512x16_S4x1x16_0_456_0 : S4x512x16.Slices ![0, 456, 0] S4x1x16
  slices_S4x512x256_S4x1x256_0_457_0 : S4x512x256.Slices ![0, 457, 0] S4x1x256
  slices_S4x512x16_S4x1x16_0_457_0 : S4x512x16.Slices ![0, 457, 0] S4x1x16
  slices_S4x512x256_S4x1x256_0_458_0 : S4x512x256.Slices ![0, 458, 0] S4x1x256
  slices_S4x512x16_S4x1x16_0_458_0 : S4x512x16.Slices ![0, 458, 0] S4x1x16
  slices_S4x512x256_S4x1x256_0_459_0 : S4x512x256.Slices ![0, 459, 0] S4x1x256
  slices_S4x512x16_S4x1x16_0_459_0 : S4x512x16.Slices ![0, 459, 0] S4x1x16
  slices_S4x512x256_S4x1x256_0_460_0 : S4x512x256.Slices ![0, 460, 0] S4x1x256
  slices_S4x512x16_S4x1x16_0_460_0 : S4x512x16.Slices ![0, 460, 0] S4x1x16
  slices_S4x512x256_S4x1x256_0_461_0 : S4x512x256.Slices ![0, 461, 0] S4x1x256
  slices_S4x512x16_S4x1x16_0_461_0 : S4x512x16.Slices ![0, 461, 0] S4x1x16
  slices_S4x512x256_S4x1x256_0_462_0 : S4x512x256.Slices ![0, 462, 0] S4x1x256
  slices_S4x512x16_S4x1x16_0_462_0 : S4x512x16.Slices ![0, 462, 0] S4x1x16
  slices_S4x512x256_S4x1x256_0_463_0 : S4x512x256.Slices ![0, 463, 0] S4x1x256
  slices_S4x512x16_S4x1x16_0_463_0 : S4x512x16.Slices ![0, 463, 0] S4x1x16
  slices_S4x512x256_S4x1x256_0_464_0 : S4x512x256.Slices ![0, 464, 0] S4x1x256
  slices_S4x512x16_S4x1x16_0_464_0 : S4x512x16.Slices ![0, 464, 0] S4x1x16
  slices_S4x512x256_S4x1x256_0_465_0 : S4x512x256.Slices ![0, 465, 0] S4x1x256
  slices_S4x512x16_S4x1x16_0_465_0 : S4x512x16.Slices ![0, 465, 0] S4x1x16
  slices_S4x512x256_S4x1x256_0_466_0 : S4x512x256.Slices ![0, 466, 0] S4x1x256
  slices_S4x512x16_S4x1x16_0_466_0 : S4x512x16.Slices ![0, 466, 0] S4x1x16
  slices_S4x512x256_S4x1x256_0_467_0 : S4x512x256.Slices ![0, 467, 0] S4x1x256
  slices_S4x512x16_S4x1x16_0_467_0 : S4x512x16.Slices ![0, 467, 0] S4x1x16
  slices_S4x512x256_S4x1x256_0_468_0 : S4x512x256.Slices ![0, 468, 0] S4x1x256
  slices_S4x512x16_S4x1x16_0_468_0 : S4x512x16.Slices ![0, 468, 0] S4x1x16
  slices_S4x512x256_S4x1x256_0_469_0 : S4x512x256.Slices ![0, 469, 0] S4x1x256
  slices_S4x512x16_S4x1x16_0_469_0 : S4x512x16.Slices ![0, 469, 0] S4x1x16
  slices_S4x512x256_S4x1x256_0_470_0 : S4x512x256.Slices ![0, 470, 0] S4x1x256
  slices_S4x512x16_S4x1x16_0_470_0 : S4x512x16.Slices ![0, 470, 0] S4x1x16
  slices_S4x512x256_S4x1x256_0_471_0 : S4x512x256.Slices ![0, 471, 0] S4x1x256
  slices_S4x512x16_S4x1x16_0_471_0 : S4x512x16.Slices ![0, 471, 0] S4x1x16
  slices_S4x512x256_S4x1x256_0_472_0 : S4x512x256.Slices ![0, 472, 0] S4x1x256
  slices_S4x512x16_S4x1x16_0_472_0 : S4x512x16.Slices ![0, 472, 0] S4x1x16
  slices_S4x512x256_S4x1x256_0_473_0 : S4x512x256.Slices ![0, 473, 0] S4x1x256
  slices_S4x512x16_S4x1x16_0_473_0 : S4x512x16.Slices ![0, 473, 0] S4x1x16
  slices_S4x512x256_S4x1x256_0_474_0 : S4x512x256.Slices ![0, 474, 0] S4x1x256
  slices_S4x512x16_S4x1x16_0_474_0 : S4x512x16.Slices ![0, 474, 0] S4x1x16
  slices_S4x512x256_S4x1x256_0_475_0 : S4x512x256.Slices ![0, 475, 0] S4x1x256
  slices_S4x512x16_S4x1x16_0_475_0 : S4x512x16.Slices ![0, 475, 0] S4x1x16
  slices_S4x512x256_S4x1x256_0_476_0 : S4x512x256.Slices ![0, 476, 0] S4x1x256
  slices_S4x512x16_S4x1x16_0_476_0 : S4x512x16.Slices ![0, 476, 0] S4x1x16
  slices_S4x512x256_S4x1x256_0_477_0 : S4x512x256.Slices ![0, 477, 0] S4x1x256
  slices_S4x512x16_S4x1x16_0_477_0 : S4x512x16.Slices ![0, 477, 0] S4x1x16
  slices_S4x512x256_S4x1x256_0_478_0 : S4x512x256.Slices ![0, 478, 0] S4x1x256
  slices_S4x512x16_S4x1x16_0_478_0 : S4x512x16.Slices ![0, 478, 0] S4x1x16
  slices_S4x512x256_S4x1x256_0_479_0 : S4x512x256.Slices ![0, 479, 0] S4x1x256
  slices_S4x512x16_S4x1x16_0_479_0 : S4x512x16.Slices ![0, 479, 0] S4x1x16
  slices_S4x512x256_S4x1x256_0_480_0 : S4x512x256.Slices ![0, 480, 0] S4x1x256
  slices_S4x512x16_S4x1x16_0_480_0 : S4x512x16.Slices ![0, 480, 0] S4x1x16
  slices_S4x512x256_S4x1x256_0_481_0 : S4x512x256.Slices ![0, 481, 0] S4x1x256
  slices_S4x512x16_S4x1x16_0_481_0 : S4x512x16.Slices ![0, 481, 0] S4x1x16
  slices_S4x512x256_S4x1x256_0_482_0 : S4x512x256.Slices ![0, 482, 0] S4x1x256
  slices_S4x512x16_S4x1x16_0_482_0 : S4x512x16.Slices ![0, 482, 0] S4x1x16
  slices_S4x512x256_S4x1x256_0_483_0 : S4x512x256.Slices ![0, 483, 0] S4x1x256
  slices_S4x512x16_S4x1x16_0_483_0 : S4x512x16.Slices ![0, 483, 0] S4x1x16
  slices_S4x512x256_S4x1x256_0_484_0 : S4x512x256.Slices ![0, 484, 0] S4x1x256
  slices_S4x512x16_S4x1x16_0_484_0 : S4x512x16.Slices ![0, 484, 0] S4x1x16
  slices_S4x512x256_S4x1x256_0_485_0 : S4x512x256.Slices ![0, 485, 0] S4x1x256
  slices_S4x512x16_S4x1x16_0_485_0 : S4x512x16.Slices ![0, 485, 0] S4x1x16
  slices_S4x512x256_S4x1x256_0_486_0 : S4x512x256.Slices ![0, 486, 0] S4x1x256
  slices_S4x512x16_S4x1x16_0_486_0 : S4x512x16.Slices ![0, 486, 0] S4x1x16
  slices_S4x512x256_S4x1x256_0_487_0 : S4x512x256.Slices ![0, 487, 0] S4x1x256
  slices_S4x512x16_S4x1x16_0_487_0 : S4x512x16.Slices ![0, 487, 0] S4x1x16
  slices_S4x512x256_S4x1x256_0_488_0 : S4x512x256.Slices ![0, 488, 0] S4x1x256
  slices_S4x512x16_S4x1x16_0_488_0 : S4x512x16.Slices ![0, 488, 0] S4x1x16
  slices_S4x512x256_S4x1x256_0_489_0 : S4x512x256.Slices ![0, 489, 0] S4x1x256
  slices_S4x512x16_S4x1x16_0_489_0 : S4x512x16.Slices ![0, 489, 0] S4x1x16
  slices_S4x512x256_S4x1x256_0_490_0 : S4x512x256.Slices ![0, 490, 0] S4x1x256
  slices_S4x512x16_S4x1x16_0_490_0 : S4x512x16.Slices ![0, 490, 0] S4x1x16
  slices_S4x512x256_S4x1x256_0_491_0 : S4x512x256.Slices ![0, 491, 0] S4x1x256
  slices_S4x512x16_S4x1x16_0_491_0 : S4x512x16.Slices ![0, 491, 0] S4x1x16
  slices_S4x512x256_S4x1x256_0_492_0 : S4x512x256.Slices ![0, 492, 0] S4x1x256
  slices_S4x512x16_S4x1x16_0_492_0 : S4x512x16.Slices ![0, 492, 0] S4x1x16
  slices_S4x512x256_S4x1x256_0_493_0 : S4x512x256.Slices ![0, 493, 0] S4x1x256

class Shapes2.Facts₀ : Prop where
  slices_S4x512x16_S4x1x16_0_493_0 : S4x512x16.Slices ![0, 493, 0] S4x1x16
  slices_S4x512x256_S4x1x256_0_494_0 : S4x512x256.Slices ![0, 494, 0] S4x1x256
  slices_S4x512x16_S4x1x16_0_494_0 : S4x512x16.Slices ![0, 494, 0] S4x1x16
  slices_S4x512x256_S4x1x256_0_495_0 : S4x512x256.Slices ![0, 495, 0] S4x1x256
  slices_S4x512x16_S4x1x16_0_495_0 : S4x512x16.Slices ![0, 495, 0] S4x1x16
  slices_S4x512x256_S4x1x256_0_496_0 : S4x512x256.Slices ![0, 496, 0] S4x1x256
  slices_S4x512x16_S4x1x16_0_496_0 : S4x512x16.Slices ![0, 496, 0] S4x1x16
  slices_S4x512x256_S4x1x256_0_497_0 : S4x512x256.Slices ![0, 497, 0] S4x1x256
  slices_S4x512x16_S4x1x16_0_497_0 : S4x512x16.Slices ![0, 497, 0] S4x1x16
  slices_S4x512x256_S4x1x256_0_498_0 : S4x512x256.Slices ![0, 498, 0] S4x1x256
  slices_S4x512x16_S4x1x16_0_498_0 : S4x512x16.Slices ![0, 498, 0] S4x1x16
  slices_S4x512x256_S4x1x256_0_499_0 : S4x512x256.Slices ![0, 499, 0] S4x1x256
  slices_S4x512x16_S4x1x16_0_499_0 : S4x512x16.Slices ![0, 499, 0] S4x1x16
  slices_S4x512x256_S4x1x256_0_500_0 : S4x512x256.Slices ![0, 500, 0] S4x1x256
  slices_S4x512x16_S4x1x16_0_500_0 : S4x512x16.Slices ![0, 500, 0] S4x1x16
  slices_S4x512x256_S4x1x256_0_501_0 : S4x512x256.Slices ![0, 501, 0] S4x1x256
  slices_S4x512x16_S4x1x16_0_501_0 : S4x512x16.Slices ![0, 501, 0] S4x1x16
  slices_S4x512x256_S4x1x256_0_502_0 : S4x512x256.Slices ![0, 502, 0] S4x1x256
  slices_S4x512x16_S4x1x16_0_502_0 : S4x512x16.Slices ![0, 502, 0] S4x1x16
  slices_S4x512x256_S4x1x256_0_503_0 : S4x512x256.Slices ![0, 503, 0] S4x1x256
  slices_S4x512x16_S4x1x16_0_503_0 : S4x512x16.Slices ![0, 503, 0] S4x1x16
  slices_S4x512x256_S4x1x256_0_504_0 : S4x512x256.Slices ![0, 504, 0] S4x1x256
  slices_S4x512x16_S4x1x16_0_504_0 : S4x512x16.Slices ![0, 504, 0] S4x1x16
  slices_S4x512x256_S4x1x256_0_505_0 : S4x512x256.Slices ![0, 505, 0] S4x1x256
  slices_S4x512x16_S4x1x16_0_505_0 : S4x512x16.Slices ![0, 505, 0] S4x1x16
  slices_S4x512x256_S4x1x256_0_506_0 : S4x512x256.Slices ![0, 506, 0] S4x1x256
  slices_S4x512x16_S4x1x16_0_506_0 : S4x512x16.Slices ![0, 506, 0] S4x1x16
  slices_S4x512x256_S4x1x256_0_507_0 : S4x512x256.Slices ![0, 507, 0] S4x1x256
  slices_S4x512x16_S4x1x16_0_507_0 : S4x512x16.Slices ![0, 507, 0] S4x1x16
  slices_S4x512x256_S4x1x256_0_508_0 : S4x512x256.Slices ![0, 508, 0] S4x1x256
  slices_S4x512x16_S4x1x16_0_508_0 : S4x512x16.Slices ![0, 508, 0] S4x1x16
  slices_S4x512x256_S4x1x256_0_509_0 : S4x512x256.Slices ![0, 509, 0] S4x1x256
  slices_S4x512x16_S4x1x16_0_509_0 : S4x512x16.Slices ![0, 509, 0] S4x1x16
  slices_S4x512x256_S4x1x256_0_510_0 : S4x512x256.Slices ![0, 510, 0] S4x1x256
  slices_S4x512x16_S4x1x16_0_510_0 : S4x512x16.Slices ![0, 510, 0] S4x1x16
  slices_S4x512x256_S4x1x256_0_511_0 : S4x512x256.Slices ![0, 511, 0] S4x1x256
  slices_S4x512x16_S4x1x16_0_511_0 : S4x512x16.Slices ![0, 511, 0] S4x1x16
  scatter_S4x512x256_S1_S4x256_01_1_1_0_wf : ScatterDims.WF S4x512x256 S1 S4x256 [0, 1] [1] [1] 0

class Facts₀ : Prop where
  shapes1 : Shapes1.Facts₀
  shapes2 : Shapes2.Facts₀
attribute [instance] Facts₀.shapes1 Facts₀.shapes2

variable [Facts₀]

def scatter_S4x512x256_S1_S4x256_01_1_1_0 : ScatterDims S4x512x256 S1 S4x256 where
  updateWindowDims := [0, 1]
  insertedWindowDims := [1]
  scatterDimsToOperandDims := [1]
  indexVectorDim := 0
  wf := scatter_S4x512x256_S1_S4x256_01_1_1_0_wf

class Facts : Prop extends Facts₀ where

variable [Facts]
-- ==== Proof.KVal.lean ====
/-
  The values the kernel's protocol moves, named as pure functions of the initial memory: for each device
  the state it sends along the y axis, the state it folds in, the half-precision rows it sends along the x
  axis, the rows it receives, and the output staging buffer when the body ends.
-/
import proofs.«900482_g7700000000000483_dist_ssm_v7x_xy2x2_y_b4_s256_d256_n16_f32_1_alg».proof.Proof.Gen.KernelIdeal
import proofs.«900482_g7700000000000483_dist_ssm_v7x_xy2x2_y_b4_s256_d256_n16_f32_1_alg».proof.Proof.Gen.KernelIdeal.Skeleton
import Idealize.ShloMosaic.Lib.Writes
import Idealize.ShloMosaic.Lib.Pipeline.FrameBody

noncomputable section

namespace Cert.KernelIdeal.KVal

open Idealize.ShloMosaic Idealize.SL.Sem Cert.KernelIdeal

variable {F : FTy → Type} [FloatOps F]

/-! ## The two peers of a device on the 2×2 mesh (device c = 2 * mx + my) -/

/-- The device with the same mx and the other my. -/
def ypeer (c : Dev nD) : Dev nD := ⟨2 * (c.val / 2) + 1 - c.val % 2, by have h : c.val < 4 := c.isLt; show _ < 4; omega⟩

/-- The device with the other mx and the same my. -/
def xpeer (c : Dev nD) : Dev nD := ⟨c.val % 2 + 2 - 2 * (c.val / 2), by have h : c.val < 4 := c.isLt; show _ < 4; omega⟩

theorem ypeer_ypeer : ∀ c : Dev nD, ypeer (ypeer c) = c := by decide
theorem xpeer_xpeer : ∀ c : Dev nD, xpeer (xpeer c) = c := by decide
theorem ypeer_ne : ∀ c : Dev nD, ypeer c ≠ c := by decide
theorem xpeer_ne : ∀ c : Dev nD, xpeer c ≠ c := by decide
theorem xpeer_ne_ypeer : ∀ c : Dev nD, xpeer c ≠ ypeer c := by decide
theorem ypeer_mod : ∀ c : Dev nD, (ypeer c).val % 2 = 1 - c.val % 2 := by decide
theorem xpeer_mod : ∀ c : Dev nD, (xpeer c).val % 2 = c.val % 2 := by decide
theorem ypeer_div : ∀ c : Dev nD, (ypeer c).val / 2 = c.val / 2 := by decide
theorem xpeer_div : ∀ c : Dev nD, (xpeer c).val / 2 = 1 - c.val / 2 := by decide
theorem xpeer_ypeer : ∀ c : Dev nD, xpeer (ypeer c) = ypeer (xpeer c) := by decide

theorem dev1_eq (c : Dev nD) : (⟨k0_dev1 c, Gen.k0_dev1_lt c⟩ : Dev nD) = ypeer c := Fin.ext (Gen.k0_dev1_eq c)
theorem dev2_eq (c : Dev nD) : (⟨k0_dev2 c, Gen.k0_dev2_lt c⟩ : Dev nD) = xpeer c := Fin.ext (Gen.k0_dev2_eq c)
theorem dev3_eq (c : Dev nD) (h : k0_cond1 c = 1#1) : (⟨k0_dev3 c, Gen.k0_dev3_lt c h⟩ : Dev nD) = ypeer c := Fin.ext (Gen.k0_dev3_eq c)
theorem dev4_eq (c : Dev nD) : (⟨k0_dev4 c, Gen.k0_dev4_lt c⟩ : Dev nD) = xpeer c := Fin.ext (Gen.k0_dev4_eq c)
theorem dev5_eq (c : Dev nD) : (⟨k0_dev5 c, Gen.k0_dev5_lt c⟩ : Dev nD) = xpeer c := Fin.ext (Gen.k0_dev5_eq c)
theorem dev6_eq (c : Dev nD) : (⟨k0_dev6 c, Gen.k0_dev6_lt c⟩ : Dev nD) = xpeer c := Fin.ext (Gen.k0_dev6_eq c)
theorem dev7_eq (c : Dev nD) : (⟨k0_dev7 c, Gen.k0_dev7_lt c⟩ : Dev nD) = xpeer c := Fin.ext (Gen.k0_dev7_eq c)
theorem dev8_eq (c : Dev nD) : (⟨k0_dev8 c, Gen.k0_dev8_lt c⟩ : Dev nD) = xpeer c := Fin.ext (Gen.k0_dev8_eq c)
theorem dev9_eq (c : Dev nD) : (⟨k0_dev9 c, Gen.k0_dev9_lt c⟩ : Dev nD) = xpeer c := Fin.ext (Gen.k0_dev9_eq c)
theorem dev10_eq (c : Dev nD) : (⟨k0_dev10 c, Gen.k0_dev10_lt c⟩ : Dev nD) = xpeer c := Fin.ext (Gen.k0_dev10_eq c)
theorem dev11_eq (c : Dev nD) : (⟨k0_dev11 c, Gen.k0_dev11_lt c⟩ : Dev nD) = xpeer c := Fin.ext (Gen.k0_dev11_eq c)

/-- The branch condition of the body holds exactly on the devices with my = 0. -/
theorem cond1_eq : ∀ c : Dev nD, k0_cond1 c = if c.val % 2 = 0 then 1#1 else 0#1 := by decide +kernel

variable (m : (ℓ : Loc nD τ sig) → Buf (Elt F) ℓ)

/-! ## The arguments a device holds -/

/-- Device c's block of x, as an array of shape [4, 256, 256]. -/
def argX (c : Dev nD) : Vec F S4x256x256 .f32 := m ((c.tc : Thread nD τ).loc main_arg0)
/-- Device c's copy of A, [256, 16]. -/
def argA (c : Dev nD) : Vec F S256x16 .f32 := m ((c.tc : Thread nD τ).loc main_arg1)
/-- Device c's block of B, [4, 256, 16]. -/
def argB (c : Dev nD) : Vec F S4x256x16 .f32 := m ((c.tc : Thread nD τ).loc main_arg2)
/-- Device c's block of C, [4, 256, 16]. -/
def argC (c : Dev nD) : Vec F S4x256x16 .f32 := m ((c.tc : Thread nD τ).loc main_arg3)

/-- The device's copy of A as the body loads it (a load of the whole staging buffer). -/
def v20 (c : Dev nD) : Vec F S256x16 .f32 :=
  (Memref.whole cc0_stg1_0).view.readAt (Elt F) (Rect.unit (s := S256x16) ![0, 0] S256x16.size Gen.inb_S256x16_S256x16_0_0).toLoadRect (argA m c)

/-- The transposed decay exponents, [16, 256]. -/
def v22 (c : Dev nD) : FVec F S16x256 .f32 := Gen.k0_pay2 (v20 m c)

/-- The device's own two batch rows of x. -/
def v24 (c : Dev nD) : Vec F S2x256x256 .f32 :=
  (Memref.whole cc0_stg0_0).view.readAt (Elt F) (Rect.unit (s := S4x256x256) (k0_off1 c) S2x256x256.size (Gen.k0_off1_inb c)).toLoadRect (argX m c)
/-- The device's own two batch rows of B. -/
def v27 (c : Dev nD) : Vec F S2x256x16 .f32 :=
  (Memref.whole cc0_stg2_0).view.readAt (Elt F) (Rect.unit (s := S4x256x16) (k0_off2 c) S2x256x16.size (Gen.k0_off2_inb c)).toLoadRect (argB m c)
/-- The device's own two batch rows of C. -/
def v137 (c : Dev nD) : Vec F S2x256x16 .f32 :=
  (Memref.whole cc0_stg3_0).view.readAt (Elt F) (Rect.unit (s := S4x256x16) (k0_off2 c) S2x256x16.size (Gen.k0_off2_inb c)).toLoadRect (argC m c)

/-! ## The local scan: the state buffer after the whole store and the four doubling steps -/

/-- The pieces stored into the state buffer so far, last first: after the whole store. -/
def hL0 (c : Dev nD) : List (View.Piece (Elt F) S2x16x16x16x256 .f32) :=
  [⟨Rect.unit (s := S2x16x16x16x256) ![0, 0, 0, 0, 0] S2x16x16x16x256.size Gen.inb_S2x16x16x16x256_S2x16x16x16x256_0_0_0_0_0,
    Gen.k0_pay5 (Gen.k0_pay3 (v27 m c)) (Gen.k0_pay4 (v24 m c))⟩]

/-- What a load of a box of the state buffer reads after the stores L (last first). -/
def hld (L : List (View.Piece (Elt F) S2x16x16x16x256 .f32)) (r : Rect S2x16x16x16x256) : Vec F r.shape .f32 :=
  (Memref.whole cc0_scratch0).view.readCov L r.toLoadRect

/-- A load after stores reads, at each index, the payload of the last store that holds it. -/
theorem hld_eq (L : List (View.Piece (Elt F) S2x16x16x16x256 .f32)) (r : Rect S2x16x16x16x256) :
    hld L r = fun j => View.canon L (r.toLoadRect.idx j) :=
  View.readCov_eq_canon' _ L r.toLoadRect

/-- After the step of offset 1. -/
def hL1 (c : Dev nD) : List (View.Piece (Elt F) S2x16x16x16x256 .f32) :=
  ⟨Rect.unit (s := S2x16x16x16x256) ![0, 0, 0, 1, 0] S2x16x16x15x256.size Gen.inb_S2x16x16x16x256_S2x16x16x15x256_0_0_0_1_0,
    Gen.k0_pay6 (v22 m c)
      (hld (hL0 m c) (Rect.unit (s := S2x16x16x16x256) ![0, 0, 0, 1, 0] S2x16x16x15x256.size Gen.inb_S2x16x16x16x256_S2x16x16x15x256_0_0_0_1_0))
      (hld (hL0 m c) (Rect.unit (s := S2x16x16x16x256) ![0, 0, 0, 0, 0] S2x16x16x15x256.size Gen.inb_S2x16x16x16x256_S2x16x16x15x256_0_0_0_0_0))⟩ :: hL0 m c

/-- After the step of offset 2. -/
def hL2 (c : Dev nD) : List (View.Piece (Elt F) S2x16x16x16x256 .f32) :=
  ⟨Rect.unit (s := S2x16x16x16x256) ![0, 0, 0, 2, 0] S2x16x16x14x256.size Gen.inb_S2x16x16x16x256_S2x16x16x14x256_0_0_0_2_0,
    Gen.k0_pay8
      (hld (hL1 m c) (Rect.unit (s := S2x16x16x16x256) ![0, 0, 0, 2, 0] S2x16x16x14x256.size Gen.inb_S2x16x16x16x256_S2x16x16x14x256_0_0_0_2_0))
      (Gen.k0_pay7 (v22 m c))
      (hld (hL1 m c) (Rect.unit (s := S2x16x16x16x256) ![0, 0, 0, 0, 0] S2x16x16x14x256.size Gen.inb_S2x16x16x16x256_S2x16x16x14x256_0_0_0_0_0))⟩ :: hL1 m c

/-- After the step of offset 4. -/
def hL3 (c : Dev nD) : List (View.Piece (Elt F) S2x16x16x16x256 .f32) :=
  ⟨Rect.unit (s := S2x16x16x16x256) ![0, 0, 0, 4, 0] S2x16x16x12x256.size Gen.inb_S2x16x16x16x256_S2x16x16x12x256_0_0_0_4_0,
    Gen.k0_pay9 (v22 m c)
      (hld (hL2 m c) (Rect.unit (s := S2x16x16x16x256) ![0, 0, 0, 4, 0] S2x16x16x12x256.size Gen.inb_S2x16x16x16x256_S2x16x16x12x256_0_0_0_4_0))
      (hld (hL2 m c) (Rect.unit (s := S2x16x16x16x256) ![0, 0, 0, 0, 0] S2x16x16x12x256.size Gen.inb_S2x16x16x16x256_S2x16x16x12x256_0_0_0_0_0))⟩ :: hL2 m c

/-- After the step of offset 8: the state buffer for the rest of the body. -/
def hL4 (c : Dev nD) : List (View.Piece (Elt F) S2x16x16x16x256 .f32) :=
  ⟨Rect.unit (s := S2x16x16x16x256) ![0, 0, 0, 8, 0] S2x16x16x8x256.size Gen.inb_S2x16x16x16x256_S2x16x16x8x256_0_0_0_8_0,
    Gen.k0_pay11
      (hld (hL3 m c) (Rect.unit (s := S2x16x16x16x256) ![0, 0, 0, 8, 0] S2x16x16x8x256.size Gen.inb_S2x16x16x16x256_S2x16x16x8x256_0_0_0_8_0))
      (Gen.k0_pay10 (v22 m c)
        (hld (hL3 m c) (Rect.unit (s := S2x16x16x16x256) ![0, 0, 0, 0, 0] S2x16x16x8x256.size Gen.inb_S2x16x16x16x256_S2x16x16x8x256_0_0_0_0_0)))⟩ :: hL3 m c

/-- The last in-chunk states, [2, 16, 16, 1, 256]. -/
def v87 (c : Dev nD) : Vec F S2x16x16x1x256 .f32 :=
  hld (hL4 m c) (Rect.unit (s := S2x16x16x16x256) ![0, 0, 0, 15, 0] S2x16x16x1x256.size Gen.inb_S2x16x16x16x256_S2x16x16x1x256_0_0_0_15_0)

def v121 (c : Dev nD) : FVec F S2x16x16x256 .f32 := Gen.k0_pay12 (v22 m c) (v87 m c)
def v125 (c : Dev nD) : FVec F S2x16x8x256 .f32 := Gen.k0_pay13 (v22 m c) (v87 m c)
def v126 (c : Dev nD) : FVec F S2x16x8x256 .f32 := Gen.k0_pay14 (v22 m c) (v87 m c)
def v127 (c : Dev nD) : FVec F S1x16x1x256 .f32 := Gen.k0_pay15 (v22 m c)

/-! ## The state handed along the y axis -/

/-- The device's final local state, [2, 16, 256]. -/
def hsendV (c : Dev nD) : Vec F S2x16x256 .f32 := Gen.k0_pay17 (v121 m c) (v125 m c) (v126 m c) (v127 m c)

/-- What a device with my = 0 stores into its send buffer. -/
def hsendVal (c : Dev nD) : Buf (Elt F) ((c.tc : Thread nD τ).loc cc0_scratch1) := hsendV m c

/-- The entering state a device folds in: zero on my = 0, the y-peer's final local state on my = 1. -/
def hinV (c : Dev nD) : Vec F S2x16x256 .f32 := if c.val % 2 = 0 then Gen.k0_pay18 else hsendV m (ypeer c)

/-- The entering state as the body loads it from the receive buffer: on my = 0 after the store of zeros, on my = 1
    after the y copy has landed. -/
def v160 (c : Dev nD) : Vec F S2x16x256 .f32 :=
  if c.val % 2 = 0 then
    (Memref.whole cc0_scratch2).view.readCov
      [⟨Rect.unit (s := S2x16x256) ![0, 0, 0] S2x16x256.size Gen.inb_S2x16x256_S2x16x256_0_0_0, Gen.k0_pay18 (F := F)⟩]
      (Rect.unit (s := S2x16x256) ![0, 0, 0] S2x16x256.size Gen.inb_S2x16x256_S2x16x256_0_0_0).toLoadRect
  else
    (Memref.whole cc0_scratch2).view.readAt (Elt F)
      (Rect.unit (s := S2x16x256) ![0, 0, 0] S2x16x256.size Gen.inb_S2x16x256_S2x16x256_0_0_0).toLoadRect (hsendV m (ypeer c))

/-- The receive buffer of the y copy as the body loads it. -/
def hinVal (c : Dev nD) : Buf (Elt F) ((c.tc : Thread nD τ).loc cc0_scratch2) := hinV m c

/-! ## The eight result blocks of the device's own rows -/

def v140 (c : Dev nD) : FVec F S2x16x16x16 .f32 := Gen.k0_pay19 (v137 m c)
def v148 (c : Dev nD) : FVec F S16x16x256 .f32 := Gen.k0_pay20 (v22 m c)
def v170 (c : Dev nD) : FVec F S2x16x16x256 .f32 :=
  Gen.k0_pay21 (v22 m c) (v121 m c) (v125 m c) (v126 m c) (v127 m c) (v160 m c)

/-- Batch row 0 of the state buffer. -/
def slab0 (c : Dev nD) : Vec F S1x16x16x16x256 .f32 :=
  hld (hL4 m c) (Rect.unit (s := S2x16x16x16x256) ![0, 0, 0, 0, 0] S1x16x16x16x256.size Gen.inb_S2x16x16x16x256_S1x16x16x16x256_0_0_0_0_0)
/-- Batch row 1 of the state buffer. -/
def slab1 (c : Dev nD) : Vec F S1x16x16x16x256 .f32 :=
  hld (hL4 m c) (Rect.unit (s := S2x16x16x16x256) ![1, 0, 0, 0, 0] S1x16x16x16x256.size Gen.inb_S2x16x16x16x256_S1x16x16x16x256_1_0_0_0_0)

/-- The block of slot s = 4 * b + q in single precision, [1, 64, 256]. -/
def yblk (c : Dev nD) : Fin 8 → FVec F S1x64x256 .f32
  | 0 => Gen.k0_pay23 (v140 m c) (v148 m c) (v170 m c) (slab0 m c)
  | 1 => Gen.k0_pay26 (v140 m c) (v148 m c) (v170 m c) (slab0 m c)
  | 2 => Gen.k0_pay29 (v140 m c) (v148 m c) (v170 m c) (slab0 m c)
  | 3 => Gen.k0_pay32 (v140 m c) (v148 m c) (v170 m c) (slab0 m c)
  | 4 => Gen.k0_pay35 (v140 m c) (v148 m c) (v170 m c) (slab1 m c)
  | 5 => Gen.k0_pay39 (Gen.k0_pay38 (v140 m c) (v148 m c) (v170 m c) (slab1 m c))
  | 6 => Gen.k0_pay44 (Gen.k0_pay41 (v148 m c) (v170 m c) (slab1 m c)) (Gen.k0_pay42 (v140 m c))
  | 7 => Gen.k0_pay50 (v140 m c) (Gen.k0_pay46 (slab1 m c)) (Gen.k0_pay47 (v148 m c)) (Gen.k0_pay48 (v170 m c))

/-- The block of slot s in half precision, [1, 64, 256]. -/
def yblk16 (c : Dev nD) : Fin 8 → FVec F S1x64x256 .bf16
  | 0 => Gen.k0_pay24 (v140 m c) (v148 m c) (v170 m c) (slab0 m c)
  | 1 => Gen.k0_pay27 (v140 m c) (v148 m c) (v170 m c) (slab0 m c)
  | 2 => Gen.k0_pay30 (v140 m c) (v148 m c) (v170 m c) (slab0 m c)
  | 3 => Gen.k0_pay33 (v140 m c) (v148 m c) (v170 m c) (slab0 m c)
  | 4 => Gen.k0_pay37 (Gen.k0_pay36 (v140 m c) (v148 m c) (v170 m c) (slab1 m c))
  | 5 => Gen.k0_pay40 (Gen.k0_pay38 (v140 m c) (v148 m c) (v170 m c) (slab1 m c))
  | 6 => Gen.k0_pay45 (Gen.k0_pay41 (v148 m c) (v170 m c) (slab1 m c)) (Gen.k0_pay42 (v140 m c))
  | 7 => Gen.k0_pay51 (v140 m c) (Gen.k0_pay46 (slab1 m c)) (Gen.k0_pay47 (v148 m c)) (Gen.k0_pay48 (v170 m c))

/-- Slot s of a [2, 256, 256] buffer: rows 64 q .. 64 q + 63 of batch row b, s = 4 * b + q. -/
def slot : Fin 8 → Rect S2x256x256
  | 0 => Rect.unit (s := S2x256x256) ![0, 0, 0] S1x64x256.size Gen.inb_S2x256x256_S1x64x256_0_0_0
  | 1 => Rect.unit (s := S2x256x256) ![0, 64, 0] S1x64x256.size Gen.inb_S2x256x256_S1x64x256_0_64_0
  | 2 => Rect.unit (s := S2x256x256) ![0, 128, 0] S1x64x256.size Gen.inb_S2x256x256_S1x64x256_0_128_0
  | 3 => Rect.unit (s := S2x256x256) ![0, 192, 0] S1x64x256.size Gen.inb_S2x256x256_S1x64x256_0_192_0
  | 4 => Rect.unit (s := S2x256x256) ![1, 0, 0] S1x64x256.size Gen.inb_S2x256x256_S1x64x256_1_0_0
  | 5 => Rect.unit (s := S2x256x256) ![1, 64, 0] S1x64x256.size Gen.inb_S2x256x256_S1x64x256_1_64_0
  | 6 => Rect.unit (s := S2x256x256) ![1, 128, 0] S1x64x256.size Gen.inb_S2x256x256_S1x64x256_1_128_0
  | 7 => Rect.unit (s := S2x256x256) ![1, 192, 0] S1x64x256.size Gen.inb_S2x256x256_S1x64x256_1_192_0

/-- The eight stores into the half-precision send buffer, last first. -/
def obufL (c : Dev nD) : List (View.Piece (Elt F) S2x256x256 .bf16) :=
  [⟨Rect.unit (s := S2x256x256) ![1, 192, 0] S1x64x256.size Gen.inb_S2x256x256_S1x64x256_1_192_0, yblk16 m c 7⟩,
   ⟨Rect.unit (s := S2x256x256) ![1, 128, 0] S1x64x256.size Gen.inb_S2x256x256_S1x64x256_1_128_0, yblk16 m c 6⟩,
   ⟨Rect.unit (s := S2x256x256) ![1, 64, 0] S1x64x256.size Gen.inb_S2x256x256_S1x64x256_1_64_0, yblk16 m c 5⟩,
   ⟨Rect.unit (s := S2x256x256) ![1, 0, 0] S1x64x256.size Gen.inb_S2x256x256_S1x64x256_1_0_0, yblk16 m c 4⟩,
   ⟨Rect.unit (s := S2x256x256) ![0, 192, 0] S1x64x256.size Gen.inb_S2x256x256_S1x64x256_0_192_0, yblk16 m c 3⟩,
   ⟨Rect.unit (s := S2x256x256) ![0, 128, 0] S1x64x256.size Gen.inb_S2x256x256_S1x64x256_0_128_0, yblk16 m c 2⟩,
   ⟨Rect.unit (s := S2x256x256) ![0, 64, 0] S1x64x256.size Gen.inb_S2x256x256_S1x64x256_0_64_0, yblk16 m c 1⟩,
   ⟨Rect.unit (s := S2x256x256) ![0, 0, 0] S1x64x256.size Gen.inb_S2x256x256_S1x64x256_0_0_0, yblk16 m c 0⟩]

/-- The half-precision send buffer after its eight stores, [2, 256, 256]. -/
def obufV (c : Dev nD) : Vec F S2x256x256 .bf16 := View.canon (obufL m c)

/-- The send buffer of the x copies on device c after its eight stores. -/
def obufVal (c : Dev nD) : Buf (Elt F) ((c.tc : Thread nD τ).loc cc0_scratch3) := obufV m c

/-- The receive buffer of the x copies on device c after its eight landings: the x-peer's send buffer. -/
def ibufVal (c : Dev nD) : Buf (Elt F) ((c.tc : Thread nD τ).loc cc0_scratch4) := obufV m (xpeer c)

/-! ## The output staging buffer when the body ends -/

/-- The nine stores into the output staging buffer, last first: the peer's two batch rows widened from what was
    received, then the eight blocks of the device's own rows. -/
def outL (c : Dev nD) : List (View.Piece (Elt F) S4x256x256 .f32) :=
  [⟨Rect.unit (s := S4x256x256) (k0_off7 c) S2x256x256.size (Gen.k0_off7_inb c), Gen.k0_pay1 (obufV m (xpeer c))⟩,
   ⟨Rect.unit (s := S4x256x256) (k0_off6 c 1#32) S1x64x256.size (Gen.k0_off6_inb c 1), yblk m c 7⟩,
   ⟨Rect.unit (s := S4x256x256) (k0_off5 c 1#32) S1x64x256.size (Gen.k0_off5_inb c 1), yblk m c 6⟩,
   ⟨Rect.unit (s := S4x256x256) (k0_off4 c 1#32) S1x64x256.size (Gen.k0_off4_inb c 1), yblk m c 5⟩,
   ⟨Rect.unit (s := S4x256x256) (k0_off3 c 1#32) S1x64x256.size (Gen.k0_off3_inb c 1), yblk m c 4⟩,
   ⟨Rect.unit (s := S4x256x256) (k0_off6 c 0#32) S1x64x256.size (Gen.k0_off6_inb c 0), yblk m c 3⟩,
   ⟨Rect.unit (s := S4x256x256) (k0_off5 c 0#32) S1x64x256.size (Gen.k0_off5_inb c 0), yblk m c 2⟩,
   ⟨Rect.unit (s := S4x256x256) (k0_off4 c 0#32) S1x64x256.size (Gen.k0_off4_inb c 0), yblk m c 1⟩,
   ⟨Rect.unit (s := S4x256x256) (k0_off3 c 0#32) S1x64x256.size (Gen.k0_off3_inb c 0), yblk m c 0⟩]

/-- The output staging buffer when the body ends, [4, 256, 256]. -/
def outV (c : Dev nD) : Vec F S4x256x256 .f32 := View.canon (outL m c)

/-- The output staging buffer of device c when the body ends. -/
def outAt (c : Dev nD) : Buf (Elt F) ((c.tc : Thread nD τ).loc cc0_stg4_0) := outV m c

/-- The same contents read at the result array's location (same shape and element type). -/
def outAtRes (c : Dev nD) : Buf (Elt F) ((c.tc : Thread nD τ).loc main_v1) := outV m c

end Cert.KernelIdeal.KVal

end
-- ==== Proof.KProto.lean ====
/-
  The cross-device protocol of the kernel on the 2×2 mesh (device c = 2 * mx + my), under the rounds discipline.

  Every semaphore cell has ONE round. A device's barrier cell has two duties of one unit: one paid by its
  y-peer (same mx, other my) and one by its x-peer (other mx, same my). The y-peer's unit hands a device with
  my = 0 the peer's state-receive buffer and that the peer's y-receive cell is at its first round (what the
  state copy into the peer needs); the x-peer's unit hands over the peer's half-precision receive buffer and that
  the peer's eight x-receive cells are at their first round (what the eight row copies into the peer need).
  The y-send cell of a device with my = 0 and the y-receive cell of a device with my = 1 have one duty, the
  state copy; the eight x-send and eight x-receive cells of every device one duty each, the copy of slot s
  (rows 64 q .. 64 q + 63 of batch row b, s = 4 * b + q). A receive duty's payload states the CONTENTS that
  landed. Levels: barrier cells below y-receive cells below x-receive cells; a device waits on a cell only
  while everything it still owes lies above it.
-/
import proofs.«900482_g7700000000000483_dist_ssm_v7x_xy2x2_y_b4_s256_d256_n16_f32_1_alg».proof.Proof.KVal
import proofs.«900482_g7700000000000483_dist_ssm_v7x_xy2x2_y_b4_s256_d256_n16_f32_1_alg».proof.Proof.Gen.KernelIdeal.Launch
import proofs.«900482_g7700000000000483_dist_ssm_v7x_xy2x2_y_b4_s256_d256_n16_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.KProto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KVal (ypeer xpeer ypeer_ypeer xpeer_xpeer)

variable {F : FTy → Type} [FloatOps F]

/-! ## The resource algebra: the pipeline's copy (duties `Unit`) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The buffers and their slots -/

abbrev x0M : Memref sig .tc .vmem S4x256x256 .f32 := Memref.whole cc0_stg0_0
abbrev x1M : Memref sig .tc .vmem S256x16 .f32 := Memref.whole cc0_stg1_0
abbrev x2M : Memref sig .tc .vmem S4x256x16 .f32 := Memref.whole cc0_stg2_0
abbrev x3M : Memref sig .tc .vmem S4x256x16 .f32 := Memref.whole cc0_stg3_0
abbrev x4M : Memref sig .tc .vmem S4x256x256 .f32 := Memref.whole cc0_stg4_0
abbrev h0M : Memref sig .tc .vmem S2x16x16x16x256 .f32 := Memref.whole cc0_scratch0
abbrev hsM : Memref sig .tc .vmem S2x16x256 .f32 := Memref.whole cc0_scratch1
abbrev hiM : Memref sig .tc .vmem S2x16x256 .f32 := Memref.whole cc0_scratch2
abbrev obM : Memref sig .tc .vmem S2x256x256 .bf16 := Memref.whole cc0_scratch3
abbrev ibM : Memref sig .tc .vmem S2x256x256 .bf16 := Memref.whole cc0_scratch4

/-- Slot `s` of a [2, 256, 256] buffer: rows 64 q .. 64 q + 63 of batch row b, s = 4 * b + q. -/
abbrev sl0 : Rect S2x256x256 := Rect.unit (s := S2x256x256) ![0, 0, 0] S1x64x256.size inb_S2x256x256_S1x64x256_0_0_0
abbrev sl1 : Rect S2x256x256 := Rect.unit (s := S2x256x256) ![0, 64, 0] S1x64x256.size inb_S2x256x256_S1x64x256_0_64_0
abbrev sl2 : Rect S2x256x256 := Rect.unit (s := S2x256x256) ![0, 128, 0] S1x64x256.size inb_S2x256x256_S1x64x256_0_128_0
abbrev sl3 : Rect S2x256x256 := Rect.unit (s := S2x256x256) ![0, 192, 0] S1x64x256.size inb_S2x256x256_S1x64x256_0_192_0
abbrev sl4 : Rect S2x256x256 := Rect.unit (s := S2x256x256) ![1, 0, 0] S1x64x256.size inb_S2x256x256_S1x64x256_1_0_0
abbrev sl5 : Rect S2x256x256 := Rect.unit (s := S2x256x256) ![1, 64, 0] S1x64x256.size inb_S2x256x256_S1x64x256_1_64_0
abbrev sl6 : Rect S2x256x256 := Rect.unit (s := S2x256x256) ![1, 128, 0] S1x64x256.size inb_S2x256x256_S1x64x256_1_128_0
abbrev sl7 : Rect S2x256x256 := Rect.unit (s := S2x256x256) ![1, 192, 0] S1x64x256.size inb_S2x256x256_S1x64x256_1_192_0

abbrev obS0 : Memref sig .tc .vmem S64x256 .bf16 := (obM.slice (Rect.unit (s := S2x256x256) ![0, 0, 0] S1x64x256.size inb_S2x256x256_S1x64x256_0_0_0) (fun _ => rfl)).squeeze S64x256 squeezes_S1x64x256_S64x256
abbrev ibS0 : Memref sig .tc .vmem S64x256 .bf16 := (ibM.slice (Rect.unit (s := S2x256x256) ![0, 0, 0] S1x64x256.size inb_S2x256x256_S1x64x256_0_0_0) (fun _ => rfl)).squeeze S64x256 squeezes_S1x64x256_S64x256
abbrev obS1 : Memref sig .tc .vmem S64x256 .bf16 := (obM.slice (Rect.unit (s := S2x256x256) ![0, 64, 0] S1x64x256.size inb_S2x256x256_S1x64x256_0_64_0) (fun _ => rfl)).squeeze S64x256 squeezes_S1x64x256_S64x256
abbrev ibS1 : Memref sig .tc .vmem S64x256 .bf16 := (ibM.slice (Rect.unit (s := S2x256x256) ![0, 64, 0] S1x64x256.size inb_S2x256x256_S1x64x256_0_64_0) (fun _ => rfl)).squeeze S64x256 squeezes_S1x64x256_S64x256
abbrev obS2 : Memref sig .tc .vmem S64x256 .bf16 := (obM.slice (Rect.unit (s := S2x256x256) ![0, 128, 0] S1x64x256.size inb_S2x256x256_S1x64x256_0_128_0) (fun _ => rfl)).squeeze S64x256 squeezes_S1x64x256_S64x256
abbrev ibS2 : Memref sig .tc .vmem S64x256 .bf16 := (ibM.slice (Rect.unit (s := S2x256x256) ![0, 128, 0] S1x64x256.size inb_S2x256x256_S1x64x256_0_128_0) (fun _ => rfl)).squeeze S64x256 squeezes_S1x64x256_S64x256
abbrev obS3 : Memref sig .tc .vmem S64x256 .bf16 := (obM.slice (Rect.unit (s := S2x256x256) ![0, 192, 0] S1x64x256.size inb_S2x256x256_S1x64x256_0_192_0) (fun _ => rfl)).squeeze S64x256 squeezes_S1x64x256_S64x256
abbrev ibS3 : Memref sig .tc .vmem S64x256 .bf16 := (ibM.slice (Rect.unit (s := S2x256x256) ![0, 192, 0] S1x64x256.size inb_S2x256x256_S1x64x256_0_192_0) (fun _ => rfl)).squeeze S64x256 squeezes_S1x64x256_S64x256
abbrev obS4 : Memref sig .tc .vmem S64x256 .bf16 := (obM.slice (Rect.unit (s := S2x256x256) ![1, 0, 0] S1x64x256.size inb_S2x256x256_S1x64x256_1_0_0) (fun _ => rfl)).squeeze S64x256 squeezes_S1x64x256_S64x256
abbrev ibS4 : Memref sig .tc .vmem S64x256 .bf16 := (ibM.slice (Rect.unit (s := S2x256x256) ![1, 0, 0] S1x64x256.size inb_S2x256x256_S1x64x256_1_0_0) (fun _ => rfl)).squeeze S64x256 squeezes_S1x64x256_S64x256
abbrev obS5 : Memref sig .tc .vmem S64x256 .bf16 := (obM.slice (Rect.unit (s := S2x256x256) ![1, 64, 0] S1x64x256.size inb_S2x256x256_S1x64x256_1_64_0) (fun _ => rfl)).squeeze S64x256 squeezes_S1x64x256_S64x256
abbrev ibS5 : Memref sig .tc .vmem S64x256 .bf16 := (ibM.slice (Rect.unit (s := S2x256x256) ![1, 64, 0] S1x64x256.size inb_S2x256x256_S1x64x256_1_64_0) (fun _ => rfl)).squeeze S64x256 squeezes_S1x64x256_S64x256
abbrev obS6 : Memref sig .tc .vmem S64x256 .bf16 := (obM.slice (Rect.unit (s := S2x256x256) ![1, 128, 0] S1x64x256.size inb_S2x256x256_S1x64x256_1_128_0) (fun _ => rfl)).squeeze S64x256 squeezes_S1x64x256_S64x256
abbrev ibS6 : Memref sig .tc .vmem S64x256 .bf16 := (ibM.slice (Rect.unit (s := S2x256x256) ![1, 128, 0] S1x64x256.size inb_S2x256x256_S1x64x256_1_128_0) (fun _ => rfl)).squeeze S64x256 squeezes_S1x64x256_S64x256
abbrev obS7 : Memref sig .tc .vmem S64x256 .bf16 := (obM.slice (Rect.unit (s := S2x256x256) ![1, 192, 0] S1x64x256.size inb_S2x256x256_S1x64x256_1_192_0) (fun _ => rfl)).squeeze S64x256 squeezes_S1x64x256_S64x256
abbrev ibS7 : Memref sig .tc .vmem S64x256 .bf16 := (ibM.slice (Rect.unit (s := S2x256x256) ![1, 192, 0] S1x64x256.size inb_S2x256x256_S1x64x256_1_192_0) (fun _ => rfl)).squeeze S64x256 squeezes_S1x64x256_S64x256

/-- Slot `s` of the half-precision send buffer, as the copies take it. -/
def obS : Fin 8 → Memref sig .tc .vmem S64x256 .bf16
  | 0 => obS0
  | 1 => obS1
  | 2 => obS2
  | 3 => obS3
  | 4 => obS4
  | 5 => obS5
  | 6 => obS6
  | 7 => obS7
/-- Slot `s` of the half-precision receive buffer. -/
def ibS : Fin 8 → Memref sig .tc .vmem S64x256 .bf16
  | 0 => ibS0
  | 1 => ibS1
  | 2 => ibS2
  | 3 => ibS3
  | 4 => ibS4
  | 5 => ibS5
  | 6 => ibS6
  | 7 => ibS7

/-! ## The semaphores and the cells -/

/-- The barrier semaphore of collective id 0 (not scoped to the launch). -/
abbrev barS : Sem sig := (SemArray.scalar (sig.barrier 0 rfl) : Sems sig S_).sem
abbrev ysS : DmaSem sig := cc0_scratch5.sem
abbrev yrS : DmaSem sig := cc0_scratch6.sem
abbrev xsS0 : DmaSem sig := ((cc0_scratch7.slice (Rect.unit (s := S8) ![0] S1.size inb_S8_S1_0)).squeeze S_ squeezes_S1_S_).sem
abbrev xrS0 : DmaSem sig := ((cc0_scratch8.slice (Rect.unit (s := S8) ![0] S1.size inb_S8_S1_0)).squeeze S_ squeezes_S1_S_).sem
abbrev xsS1 : DmaSem sig := ((cc0_scratch7.slice (Rect.unit (s := S8) ![1] S1.size inb_S8_S1_1)).squeeze S_ squeezes_S1_S_).sem
abbrev xrS1 : DmaSem sig := ((cc0_scratch8.slice (Rect.unit (s := S8) ![1] S1.size inb_S8_S1_1)).squeeze S_ squeezes_S1_S_).sem
abbrev xsS2 : DmaSem sig := ((cc0_scratch7.slice (Rect.unit (s := S8) ![2] S1.size inb_S8_S1_2)).squeeze S_ squeezes_S1_S_).sem
abbrev xrS2 : DmaSem sig := ((cc0_scratch8.slice (Rect.unit (s := S8) ![2] S1.size inb_S8_S1_2)).squeeze S_ squeezes_S1_S_).sem
abbrev xsS3 : DmaSem sig := ((cc0_scratch7.slice (Rect.unit (s := S8) ![3] S1.size inb_S8_S1_3)).squeeze S_ squeezes_S1_S_).sem
abbrev xrS3 : DmaSem sig := ((cc0_scratch8.slice (Rect.unit (s := S8) ![3] S1.size inb_S8_S1_3)).squeeze S_ squeezes_S1_S_).sem
abbrev xsS4 : DmaSem sig := ((cc0_scratch7.slice (Rect.unit (s := S8) ![4] S1.size inb_S8_S1_4)).squeeze S_ squeezes_S1_S_).sem
abbrev xrS4 : DmaSem sig := ((cc0_scratch8.slice (Rect.unit (s := S8) ![4] S1.size inb_S8_S1_4)).squeeze S_ squeezes_S1_S_).sem
abbrev xsS5 : DmaSem sig := ((cc0_scratch7.slice (Rect.unit (s := S8) ![5] S1.size inb_S8_S1_5)).squeeze S_ squeezes_S1_S_).sem
abbrev xrS5 : DmaSem sig := ((cc0_scratch8.slice (Rect.unit (s := S8) ![5] S1.size inb_S8_S1_5)).squeeze S_ squeezes_S1_S_).sem
abbrev xsS6 : DmaSem sig := ((cc0_scratch7.slice (Rect.unit (s := S8) ![6] S1.size inb_S8_S1_6)).squeeze S_ squeezes_S1_S_).sem
abbrev xrS6 : DmaSem sig := ((cc0_scratch8.slice (Rect.unit (s := S8) ![6] S1.size inb_S8_S1_6)).squeeze S_ squeezes_S1_S_).sem
abbrev xsS7 : DmaSem sig := ((cc0_scratch7.slice (Rect.unit (s := S8) ![7] S1.size inb_S8_S1_7)).squeeze S_ squeezes_S1_S_).sem
abbrev xrS7 : DmaSem sig := ((cc0_scratch8.slice (Rect.unit (s := S8) ![7] S1.size inb_S8_S1_7)).squeeze S_ squeezes_S1_S_).sem

/-- The send semaphore of slot `s`. -/
def xsS : Fin 8 → DmaSem sig
  | 0 => xsS0
  | 1 => xsS1
  | 2 => xsS2
  | 3 => xsS3
  | 4 => xsS4
  | 5 => xsS5
  | 6 => xsS6
  | 7 => xsS7
/-- The receive semaphore of slot `s`. -/
def xrS : Fin 8 → DmaSem sig
  | 0 => xrS0
  | 1 => xrS1
  | 2 => xrS2
  | 3 => xrS3
  | 4 => xrS4
  | 5 => xrS5
  | 6 => xrS6
  | 7 => xrS7

abbrev barCell (c : Dev nD) : GSem nD τ sig := ((c : Thread nD τ), .reg barS)
abbrev ysCell (c : Dev nD) : GSem nD τ sig := ((c : Thread nD τ), .dma ysS)
abbrev yrCell (c : Dev nD) : GSem nD τ sig := ((c : Thread nD τ), .dma yrS)
abbrev xsCell (c : Dev nD) (s : Fin 8) : GSem nD τ sig := ((c : Thread nD τ), .dma (xsS s))
abbrev xrCell (c : Dev nD) (s : Fin 8) : GSem nD τ sig := ((c : Thread nD τ), .dma (xrS s))

/-- What a cell is for, read off its semaphore's number in the pool. -/
inductive CellKind where
  | bar | ys | yr | xs (s : Fin 8) | xr (s : Fin 8) | other
deriving DecidableEq

def kindOf : SemLoc sig → CellKind
  | .reg b => if b = barS then .bar else .other
  | .dma q =>
    if q.val = 5 then .ys else if q.val = 6 then .yr
    else if h : 7 ≤ q.val ∧ q.val < 15 then .xs ⟨q.val - 7, by omega⟩
    else if h : 15 ≤ q.val ∧ q.val < 23 then .xr ⟨q.val - 15, by omega⟩
    else .other

theorem kind_bar : kindOf (.reg barS) = .bar := by
  show (if barS = barS then CellKind.bar else CellKind.other) = _
  exact if_pos rfl
theorem kind_ys : kindOf (.dma ysS) = .ys := rfl
theorem kind_yr : kindOf (.dma yrS) = .yr := rfl
theorem kind_xs (s : Fin 8) : kindOf (.dma (xsS s)) = .xs s := by fin_cases s <;> rfl
theorem kind_xr (s : Fin 8) : kindOf (.dma (xrS s)) = .xr s := by fin_cases s <;> rfl

/-- The units a copy of the state buffer credits, and the units a copy of one slot credits. -/
abbrev NY : ℕ := (hiM : Memref sig .tc .vmem S2x16x256 .f32).view.dmaCredit
abbrev NX : ℕ := (ibS0 : Memref sig .tc .vmem S64x256 .bf16).view.dmaCredit
theorem NY_pos : 0 < NY := View.dmaCredit_pos _ (by decide)
theorem NX_pos : 0 < NX := View.dmaCredit_pos _ (by decide)
theorem NX_ib (s : Fin 8) : (ibS s).view.dmaCredit = NX := by fin_cases s <;> rfl

/-! ## What the landings hand over -/

/-- The y-peer's barrier unit: to a device with my = 0, the peer's state-receive buffer at any contents and that
    the peer's y-receive cell is at its first round; to a device with my = 1, nothing. -/
def barPayY (c : Dev nD) : sProp 𝕄 :=
  if c.val % 2 = 0 then
    iprop((∃ f : Buf (Elt F) (hiM.view.loc (ypeer c : Thread nD τ)), hiM.view.loc (ypeer c : Thread nD τ) ↦{fullShare} f)
      ∗ reached ER ((ypeer c : Thread nD τ), .dma yrS) 0)
  else iprop(emp)

/-- The x-peer's barrier unit: the eight slots of the peer's half-precision receive buffer, each at any contents,
    and that the peer's eight x-receive cells are at their first round. -/
def barPayX (c : Dev nD) : sProp 𝕄 :=
  iprop((∃ f : Buf (Elt F) (ibS0.view.loc (xpeer c : Thread nD τ)), ibS0.view.loc (xpeer c : Thread nD τ) ↦[ibS0.view.set]{fullShare} f)
    ∗ (∃ f : Buf (Elt F) (ibS1.view.loc (xpeer c : Thread nD τ)), ibS1.view.loc (xpeer c : Thread nD τ) ↦[ibS1.view.set]{fullShare} f)
    ∗ (∃ f : Buf (Elt F) (ibS2.view.loc (xpeer c : Thread nD τ)), ibS2.view.loc (xpeer c : Thread nD τ) ↦[ibS2.view.set]{fullShare} f)
    ∗ (∃ f : Buf (Elt F) (ibS3.view.loc (xpeer c : Thread nD τ)), ibS3.view.loc (xpeer c : Thread nD τ) ↦[ibS3.view.set]{fullShare} f)
    ∗ (∃ f : Buf (Elt F) (ibS4.view.loc (xpeer c : Thread nD τ)), ibS4.view.loc (xpeer c : Thread nD τ) ↦[ibS4.view.set]{fullShare} f)
    ∗ (∃ f : Buf (Elt F) (ibS5.view.loc (xpeer c : Thread nD τ)), ibS5.view.loc (xpeer c : Thread nD τ) ↦[ibS5.view.set]{fullShare} f)
    ∗ (∃ f : Buf (Elt F) (ibS6.view.loc (xpeer c : Thread nD τ)), ibS6.view.loc (xpeer c : Thread nD τ) ↦[ibS6.view.set]{fullShare} f)
    ∗ (∃ f : Buf (Elt F) (ibS7.view.loc (xpeer c : Thread nD τ)), ibS7.view.loc (xpeer c : Thread nD τ) ↦[ibS7.view.set]{fullShare} f)
    ∗ reached ER ((xpeer c : Thread nD τ), .dma xrS0) 0 ∗ reached ER ((xpeer c : Thread nD τ), .dma xrS1) 0 ∗ reached ER ((xpeer c : Thread nD τ), .dma xrS2) 0 ∗ reached ER ((xpeer c : Thread nD τ), .dma xrS3) 0 ∗ reached ER ((xpeer c : Thread nD τ), .dma xrS4) 0 ∗ reached ER ((xpeer c : Thread nD τ), .dma xrS5) 0 ∗ reached ER ((xpeer c : Thread nD τ), .dma xrS6) 0 ∗ reached ER ((xpeer c : Thread nD τ), .dma xrS7) 0)

/-- The state copy's departure gives the send buffer back; its landing leaves the sender's state in the receive buffer. -/
def ysPay (c : Dev nD) : sProp 𝕄 :=
  iprop(∃ f : Buf (Elt F) (hsM.view.loc (c : Thread nD τ)), hsM.view.loc (c : Thread nD τ) ↦{fullShare} f)
def yrPay (c : Dev nD) : sProp 𝕄 := hiM.view.loc (c : Thread nD τ) ↦{fullShare} KVal.hinVal m c
/-- The copy of slot `s`: its departure gives slot `s` of the send buffer back; -/
def xsPay (c : Dev nD) : Fin 8 → sProp 𝕄
  | 0 => iprop(∃ f : Buf (Elt F) (obS0.view.loc (c : Thread nD τ)), obS0.view.loc (c : Thread nD τ) ↦[obS0.view.set]{fullShare} f)
  | 1 => iprop(∃ f : Buf (Elt F) (obS1.view.loc (c : Thread nD τ)), obS1.view.loc (c : Thread nD τ) ↦[obS1.view.set]{fullShare} f)
  | 2 => iprop(∃ f : Buf (Elt F) (obS2.view.loc (c : Thread nD τ)), obS2.view.loc (c : Thread nD τ) ↦[obS2.view.set]{fullShare} f)
  | 3 => iprop(∃ f : Buf (Elt F) (obS3.view.loc (c : Thread nD τ)), obS3.view.loc (c : Thread nD τ) ↦[obS3.view.set]{fullShare} f)
  | 4 => iprop(∃ f : Buf (Elt F) (obS4.view.loc (c : Thread nD τ)), obS4.view.loc (c : Thread nD τ) ↦[obS4.view.set]{fullShare} f)
  | 5 => iprop(∃ f : Buf (Elt F) (obS5.view.loc (c : Thread nD τ)), obS5.view.loc (c : Thread nD τ) ↦[obS5.view.set]{fullShare} f)
  | 6 => iprop(∃ f : Buf (Elt F) (obS6.view.loc (c : Thread nD τ)), obS6.view.loc (c : Thread nD τ) ↦[obS6.view.set]{fullShare} f)
  | 7 => iprop(∃ f : Buf (Elt F) (obS7.view.loc (c : Thread nD τ)), obS7.view.loc (c : Thread nD τ) ↦[obS7.view.set]{fullShare} f)
/-- its landing leaves the x-peer's half-precision rows of slot `s` in slot `s` of the receive buffer, written over
    whatever the buffer held. -/
def xrPay (c : Dev nD) : Fin 8 → sProp 𝕄
  | 0 => iprop(∃ f : Buf (Elt F) (ibM.view.loc (c : Thread nD τ)), (ibM.access sl0).loc (c : Thread nD τ) ↦[(ibM.access sl0).set]{fullShare} (ibM.access sl0).write (Elt F) f (KVal.yblk16 m (xpeer c) 0) Finset.univ)
  | 1 => iprop(∃ f : Buf (Elt F) (ibM.view.loc (c : Thread nD τ)), (ibM.access sl1).loc (c : Thread nD τ) ↦[(ibM.access sl1).set]{fullShare} (ibM.access sl1).write (Elt F) f (KVal.yblk16 m (xpeer c) 1) Finset.univ)
  | 2 => iprop(∃ f : Buf (Elt F) (ibM.view.loc (c : Thread nD τ)), (ibM.access sl2).loc (c : Thread nD τ) ↦[(ibM.access sl2).set]{fullShare} (ibM.access sl2).write (Elt F) f (KVal.yblk16 m (xpeer c) 2) Finset.univ)
  | 3 => iprop(∃ f : Buf (Elt F) (ibM.view.loc (c : Thread nD τ)), (ibM.access sl3).loc (c : Thread nD τ) ↦[(ibM.access sl3).set]{fullShare} (ibM.access sl3).write (Elt F) f (KVal.yblk16 m (xpeer c) 3) Finset.univ)
  | 4 => iprop(∃ f : Buf (Elt F) (ibM.view.loc (c : Thread nD τ)), (ibM.access sl4).loc (c : Thread nD τ) ↦[(ibM.access sl4).set]{fullShare} (ibM.access sl4).write (Elt F) f (KVal.yblk16 m (xpeer c) 4) Finset.univ)
  | 5 => iprop(∃ f : Buf (Elt F) (ibM.view.loc (c : Thread nD τ)), (ibM.access sl5).loc (c : Thread nD τ) ↦[(ibM.access sl5).set]{fullShare} (ibM.access sl5).write (Elt F) f (KVal.yblk16 m (xpeer c) 5) Finset.univ)
  | 6 => iprop(∃ f : Buf (Elt F) (ibM.view.loc (c : Thread nD τ)), (ibM.access sl6).loc (c : Thread nD τ) ↦[(ibM.access sl6).set]{fullShare} (ibM.access sl6).write (Elt F) f (KVal.yblk16 m (xpeer c) 6) Finset.univ)
  | 7 => iprop(∃ f : Buf (Elt F) (ibM.view.loc (c : Thread nD τ)), (ibM.access sl7).loc (c : Thread nD τ) ↦[(ibM.access sl7).set]{fullShare} (ibM.access sl7).write (Elt F) f (KVal.yblk16 m (xpeer c) 7) Finset.univ)

/-! ## The schedule -/

/-- One round. A barrier cell has the duties `false` (from the y-peer) and `true` (from the x-peer) of one unit;
    the y-send cell of a device with my = 0, the y-receive cell of a device with my = 1 and every x cell the duty
    `false` of its copy's credit. -/
def sched : Rounds.Schedule (GSem nD τ sig) Bool 𝕄 where
  duties g r :=
    if r = 0 ∧ g.1.2 = .tc then
      match kindOf g.2 with
      | .bar => Finset.univ
      | .ys => if g.1.1.val % 2 = 0 then {false} else ∅
      | .yr => if g.1.1.val % 2 = 1 then {false} else ∅
      | .xs _ => {false}
      | .xr _ => {false}
      | .other => ∅
    else ∅
  unitless _ := False
  amount g _ _ :=
    match kindOf g.2 with
    | .bar => 1
    | .ys => NY
    | .yr => NY
    | .xs _ => NX
    | .xr _ => NX
    | .other => 1
  payload g _ d :=
    match kindOf g.2 with
    | .bar => if d then barPayX g.1.1 else barPayY g.1.1
    | .ys => ysPay g.1.1
    | .yr => yrPay m g.1.1
    | .xs s => xsPay g.1.1 s
    | .xr s => xrPay m g.1.1 s
    | .other => iprop(emp)
  amount_pos g _ _ _ := by
    cases kindOf g.2 <;> first | exact Nat.one_pos | exact NY_pos | exact NX_pos

set_option synthInstance.maxHeartbeats 400000 in
set_option maxHeartbeats 4000000 in
instance sched_payload_storable (g : GSem nD τ sig) (r : ℕ) (d : Bool) :
    BI.Storable (upEmb : UEmb _ 𝕄) ((sched (F := F) m).payload g r d) := by
  show BI.Storable upEmb (match kindOf g.2 with
    | .bar => if d then barPayX g.1.1 else barPayY g.1.1
    | .ys => ysPay g.1.1
    | .yr => yrPay m g.1.1
    | .xs s => xsPay g.1.1 s
    | .xr s => xrPay m g.1.1 s
    | .other => iprop(emp))
  unfold barPayX barPayY ysPay yrPay xsPay xrPay
  (repeat' split) <;> infer_instance

/-! ## The schedule's tables, cell by cell -/

section Sched
variable (c : Dev nD)

@[sl_rounds] theorem duties_bar : (sched (F := F) m).duties (barCell c) 0 = Finset.univ := by
  dsimp only [sched]; rw [if_pos ⟨rfl, rfl⟩, kind_bar]
@[sl_rounds] theorem duties_ys (h : c.val % 2 = 0) : (sched (F := F) m).duties (ysCell c) 0 = {false} := by
  dsimp only [sched]; rw [if_pos ⟨rfl, rfl⟩, kind_ys]; exact if_pos h
theorem duties_ys_odd (h : c.val % 2 = 1) : (sched (F := F) m).duties (ysCell c) 0 = ∅ := by
  dsimp only [sched]; rw [if_pos ⟨rfl, rfl⟩, kind_ys]; exact if_neg (by omega)
@[sl_rounds] theorem duties_yr (h : c.val % 2 = 1) : (sched (F := F) m).duties (yrCell c) 0 = {false} := by
  dsimp only [sched]; rw [if_pos ⟨rfl, rfl⟩, kind_yr]; exact if_pos h
theorem duties_yr_even (h : c.val % 2 = 0) : (sched (F := F) m).duties (yrCell c) 0 = ∅ := by
  dsimp only [sched]; rw [if_pos ⟨rfl, rfl⟩, kind_yr]; exact if_neg (by omega)
@[sl_rounds] theorem duties_xs (s : Fin 8) : (sched (F := F) m).duties (xsCell c s) 0 = {false} := by
  dsimp only [sched]; rw [if_pos ⟨rfl, rfl⟩, kind_xs]
@[sl_rounds] theorem duties_xr (s : Fin 8) : (sched (F := F) m).duties (xrCell c s) 0 = {false} := by
  dsimp only [sched]; rw [if_pos ⟨rfl, rfl⟩, kind_xr]
theorem duties_later (g : GSem nD τ sig) : ∀ r, 1 ≤ r → (sched (F := F) m).duties g r = ∅ :=
  fun r hr => by dsimp only [sched]; rw [if_neg fun h => by omega]
/-- A y cell nobody pays has no duty in any round. -/
theorem duties_ys_none (h : c.val % 2 = 1) : ∀ r, 0 ≤ r → (sched (F := F) m).duties (ysCell c) r = ∅ := fun r _ => by
  rcases Nat.eq_zero_or_pos r with rfl | hr
  · exact duties_ys_odd m c h
  · exact duties_later m _ r hr
theorem duties_yr_none (h : c.val % 2 = 0) : ∀ r, 0 ≤ r → (sched (F := F) m).duties (yrCell c) r = ∅ := fun r _ => by
  rcases Nat.eq_zero_or_pos r with rfl | hr
  · exact duties_yr_even m c h
  · exact duties_later m _ r hr

@[sl_rounds] theorem amount_bar (d : Bool) : (sched (F := F) m).amount (barCell c) 0 d = 1 := by dsimp only [sched]; rw [kind_bar]
@[sl_rounds] theorem amount_ys (d : Bool) : (sched (F := F) m).amount (ysCell c) 0 d = NY := by dsimp only [sched]; rw [kind_ys]
@[sl_rounds] theorem amount_yr (d : Bool) : (sched (F := F) m).amount (yrCell c) 0 d = NY := by dsimp only [sched]; rw [kind_yr]
@[sl_rounds] theorem amount_xs (s : Fin 8) (d : Bool) : (sched (F := F) m).amount (xsCell c s) 0 d = NX := by dsimp only [sched]; rw [kind_xs]
@[sl_rounds] theorem amount_xr (s : Fin 8) (d : Bool) : (sched (F := F) m).amount (xrCell c s) 0 d = NX := by dsimp only [sched]; rw [kind_xr]

@[sl_rounds] theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
@[sl_rounds] theorem expect_ys (h : c.val % 2 = 0) : (sched (F := F) m).expect (ysCell c) 0 = NY := by
  unfold Schedule.expect Schedule.amountOf; rw [duties_ys m c h, Finset.sum_singleton, amount_ys]
@[sl_rounds] theorem expect_yr (h : c.val % 2 = 1) : (sched (F := F) m).expect (yrCell c) 0 = NY := by
  unfold Schedule.expect Schedule.amountOf; rw [duties_yr m c h, Finset.sum_singleton, amount_yr]
@[sl_rounds] theorem expect_xs (s : Fin 8) : (sched (F := F) m).expect (xsCell c s) 0 = NX := by
  unfold Schedule.expect Schedule.amountOf; rw [duties_xs, Finset.sum_singleton, amount_xs]
@[sl_rounds] theorem expect_xr (s : Fin 8) : (sched (F := F) m).expect (xrCell c s) 0 = NX := by
  unfold Schedule.expect Schedule.amountOf; rw [duties_xr, Finset.sum_singleton, amount_xr]

@[sl_rounds] theorem payload_bar_true : (sched (F := F) m).payload (barCell c) 0 true = barPayX c := by
  dsimp only [sched]; rw [kind_bar]; exact if_pos rfl
@[sl_rounds] theorem payload_bar_false : (sched (F := F) m).payload (barCell c) 0 false = barPayY c := by
  dsimp only [sched]; rw [kind_bar]; exact if_neg Bool.false_ne_true
@[sl_rounds] theorem payload_ys (d : Bool) : (sched (F := F) m).payload (ysCell c) 0 d = ysPay c := by dsimp only [sched]; rw [kind_ys]
@[sl_rounds] theorem payload_yr (d : Bool) : (sched (F := F) m).payload (yrCell c) 0 d = yrPay m c := by dsimp only [sched]; rw [kind_yr]
@[sl_rounds] theorem payload_xs (s : Fin 8) (d : Bool) : (sched (F := F) m).payload (xsCell c s) 0 d = xsPay c s := by dsimp only [sched]; rw [kind_xs]
@[sl_rounds] theorem payload_xr (s : Fin 8) (d : Bool) : (sched (F := F) m).payload (xrCell c s) 0 d = xrPay m c s := by dsimp only [sched]; rw [kind_xr]

/-- The rest of a barrier cell's round, no duty taken: the y-peer's payload and the x-peer's. -/
theorem rest_bar : bigSep ((sched (F := F) m).duties (barCell c) 0 \ ∅) (fun d => (sched (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_ys (h : c.val % 2 = 0) : bigSep ((sched (F := F) m).duties (ysCell c) 0 \ ∅) (fun d => (sched (F := F) m).payload (ysCell c) 0 d) = ysPay c := by
  rw [Finset.sdiff_empty, duties_ys m c h, bigSep_singleton, payload_ys]
theorem rest_yr (h : c.val % 2 = 1) : bigSep ((sched (F := F) m).duties (yrCell c) 0 \ ∅) (fun d => (sched (F := F) m).payload (yrCell c) 0 d) = yrPay m c := by
  rw [Finset.sdiff_empty, duties_yr m c h, bigSep_singleton, payload_yr]
theorem rest_xs (s : Fin 8) : bigSep ((sched (F := F) m).duties (xsCell c s) 0 \ ∅) (fun d => (sched (F := F) m).payload (xsCell c s) 0 d) = xsPay c s := by
  rw [Finset.sdiff_empty, duties_xs, bigSep_singleton, payload_xs]
theorem rest_xr (s : Fin 8) : bigSep ((sched (F := F) m).duties (xrCell c s) 0 \ ∅) (fun d => (sched (F := F) m).payload (xrCell c s) 0 d) = xrPay m c s := by
  rw [Finset.sdiff_empty, duties_xr, bigSep_singleton, payload_xr]

end Sched

/-! ## The payloads spelt out -/

@[sl_rounds] theorem barPayX_def (c : Dev nD) : barPayX (F := F) c =
    iprop((∃ f : Buf (Elt F) (ibS0.view.loc (xpeer c : Thread nD τ)), ibS0.view.loc (xpeer c : Thread nD τ) ↦[ibS0.view.set]{fullShare} f)
    ∗ (∃ f : Buf (Elt F) (ibS1.view.loc (xpeer c : Thread nD τ)), ibS1.view.loc (xpeer c : Thread nD τ) ↦[ibS1.view.set]{fullShare} f)
    ∗ (∃ f : Buf (Elt F) (ibS2.view.loc (xpeer c : Thread nD τ)), ibS2.view.loc (xpeer c : Thread nD τ) ↦[ibS2.view.set]{fullShare} f)
    ∗ (∃ f : Buf (Elt F) (ibS3.view.loc (xpeer c : Thread nD τ)), ibS3.view.loc (xpeer c : Thread nD τ) ↦[ibS3.view.set]{fullShare} f)
    ∗ (∃ f : Buf (Elt F) (ibS4.view.loc (xpeer c : Thread nD τ)), ibS4.view.loc (xpeer c : Thread nD τ) ↦[ibS4.view.set]{fullShare} f)
    ∗ (∃ f : Buf (Elt F) (ibS5.view.loc (xpeer c : Thread nD τ)), ibS5.view.loc (xpeer c : Thread nD τ) ↦[ibS5.view.set]{fullShare} f)
    ∗ (∃ f : Buf (Elt F) (ibS6.view.loc (xpeer c : Thread nD τ)), ibS6.view.loc (xpeer c : Thread nD τ) ↦[ibS6.view.set]{fullShare} f)
    ∗ (∃ f : Buf (Elt F) (ibS7.view.loc (xpeer c : Thread nD τ)), ibS7.view.loc (xpeer c : Thread nD τ) ↦[ibS7.view.set]{fullShare} f)
    ∗ reached ER ((xpeer c : Thread nD τ), .dma xrS0) 0 ∗ reached ER ((xpeer c : Thread nD τ), .dma xrS1) 0 ∗ reached ER ((xpeer c : Thread nD τ), .dma xrS2) 0 ∗ reached ER ((xpeer c : Thread nD τ), .dma xrS3) 0 ∗ reached ER ((xpeer c : Thread nD τ), .dma xrS4) 0 ∗ reached ER ((xpeer c : Thread nD τ), .dma xrS5) 0 ∗ reached ER ((xpeer c : Thread nD τ), .dma xrS6) 0 ∗ reached ER ((xpeer c : Thread nD τ), .dma xrS7) 0) := rfl
@[sl_rounds] theorem barPayY_even (c : Dev nD) (h : c.val % 2 = 0) : barPayY (F := F) c =
    iprop((∃ f : Buf (Elt F) (hiM.view.loc (ypeer c : Thread nD τ)), hiM.view.loc (ypeer c : Thread nD τ) ↦{fullShare} f)
      ∗ reached ER ((ypeer c : Thread nD τ), .dma yrS) 0) := by unfold barPayY; rw [if_pos h]
@[sl_rounds] theorem barPayY_odd (c : Dev nD) (h : c.val % 2 = 1) : barPayY (F := F) c = iprop(emp) := by
  unfold barPayY; rw [if_neg (by omega)]
@[sl_rounds] theorem ysPay_def (c : Dev nD) : ysPay (F := F) c =
    iprop(∃ f : Buf (Elt F) (hsM.view.loc (c : Thread nD τ)), hsM.view.loc (c : Thread nD τ) ↦{fullShare} f) := rfl
@[sl_rounds] theorem yrPay_def (c : Dev nD) : yrPay m c = (hiM.view.loc (c : Thread nD τ) ↦{fullShare} KVal.hinVal m c : sProp 𝕄) := rfl
@[sl_rounds] theorem xsPay_0 (c : Dev nD) : xsPay (F := F) c 0 =
    iprop(∃ f : Buf (Elt F) (obS0.view.loc (c : Thread nD τ)), obS0.view.loc (c : Thread nD τ) ↦[obS0.view.set]{fullShare} f) := rfl
@[sl_rounds] theorem xrPay_0 (c : Dev nD) : xrPay m c 0 =
    iprop(∃ f : Buf (Elt F) (ibM.view.loc (c : Thread nD τ)), (ibM.access sl0).loc (c : Thread nD τ) ↦[(ibM.access sl0).set]{fullShare} (ibM.access sl0).write (Elt F) f (KVal.yblk16 m (xpeer c) 0) Finset.univ) := rfl
@[sl_rounds] theorem xsPay_1 (c : Dev nD) : xsPay (F := F) c 1 =
    iprop(∃ f : Buf (Elt F) (obS1.view.loc (c : Thread nD τ)), obS1.view.loc (c : Thread nD τ) ↦[obS1.view.set]{fullShare} f) := rfl
@[sl_rounds] theorem xrPay_1 (c : Dev nD) : xrPay m c 1 =
    iprop(∃ f : Buf (Elt F) (ibM.view.loc (c : Thread nD τ)), (ibM.access sl1).loc (c : Thread nD τ) ↦[(ibM.access sl1).set]{fullShare} (ibM.access sl1).write (Elt F) f (KVal.yblk16 m (xpeer c) 1) Finset.univ) := rfl
@[sl_rounds] theorem xsPay_2 (c : Dev nD) : xsPay (F := F) c 2 =
    iprop(∃ f : Buf (Elt F) (obS2.view.loc (c : Thread nD τ)), obS2.view.loc (c : Thread nD τ) ↦[obS2.view.set]{fullShare} f) := rfl
@[sl_rounds] theorem xrPay_2 (c : Dev nD) : xrPay m c 2 =
    iprop(∃ f : Buf (Elt F) (ibM.view.loc (c : Thread nD τ)), (ibM.access sl2).loc (c : Thread nD τ) ↦[(ibM.access sl2).set]{fullShare} (ibM.access sl2).write (Elt F) f (KVal.yblk16 m (xpeer c) 2) Finset.univ) := rfl
@[sl_rounds] theorem xsPay_3 (c : Dev nD) : xsPay (F := F) c 3 =
    iprop(∃ f : Buf (Elt F) (obS3.view.loc (c : Thread nD τ)), obS3.view.loc (c : Thread nD τ) ↦[obS3.view.set]{fullShare} f) := rfl
@[sl_rounds] theorem xrPay_3 (c : Dev nD) : xrPay m c 3 =
    iprop(∃ f : Buf (Elt F) (ibM.view.loc (c : Thread nD τ)), (ibM.access sl3).loc (c : Thread nD τ) ↦[(ibM.access sl3).set]{fullShare} (ibM.access sl3).write (Elt F) f (KVal.yblk16 m (xpeer c) 3) Finset.univ) := rfl
@[sl_rounds] theorem xsPay_4 (c : Dev nD) : xsPay (F := F) c 4 =
    iprop(∃ f : Buf (Elt F) (obS4.view.loc (c : Thread nD τ)), obS4.view.loc (c : Thread nD τ) ↦[obS4.view.set]{fullShare} f) := rfl
@[sl_rounds] theorem xrPay_4 (c : Dev nD) : xrPay m c 4 =
    iprop(∃ f : Buf (Elt F) (ibM.view.loc (c : Thread nD τ)), (ibM.access sl4).loc (c : Thread nD τ) ↦[(ibM.access sl4).set]{fullShare} (ibM.access sl4).write (Elt F) f (KVal.yblk16 m (xpeer c) 4) Finset.univ) := rfl
@[sl_rounds] theorem xsPay_5 (c : Dev nD) : xsPay (F := F) c 5 =
    iprop(∃ f : Buf (Elt F) (obS5.view.loc (c : Thread nD τ)), obS5.view.loc (c : Thread nD τ) ↦[obS5.view.set]{fullShare} f) := rfl
@[sl_rounds] theorem xrPay_5 (c : Dev nD) : xrPay m c 5 =
    iprop(∃ f : Buf (Elt F) (ibM.view.loc (c : Thread nD τ)), (ibM.access sl5).loc (c : Thread nD τ) ↦[(ibM.access sl5).set]{fullShare} (ibM.access sl5).write (Elt F) f (KVal.yblk16 m (xpeer c) 5) Finset.univ) := rfl
@[sl_rounds] theorem xsPay_6 (c : Dev nD) : xsPay (F := F) c 6 =
    iprop(∃ f : Buf (Elt F) (obS6.view.loc (c : Thread nD τ)), obS6.view.loc (c : Thread nD τ) ↦[obS6.view.set]{fullShare} f) := rfl
@[sl_rounds] theorem xrPay_6 (c : Dev nD) : xrPay m c 6 =
    iprop(∃ f : Buf (Elt F) (ibM.view.loc (c : Thread nD τ)), (ibM.access sl6).loc (c : Thread nD τ) ↦[(ibM.access sl6).set]{fullShare} (ibM.access sl6).write (Elt F) f (KVal.yblk16 m (xpeer c) 6) Finset.univ) := rfl
@[sl_rounds] theorem xsPay_7 (c : Dev nD) : xsPay (F := F) c 7 =
    iprop(∃ f : Buf (Elt F) (obS7.view.loc (c : Thread nD τ)), obS7.view.loc (c : Thread nD τ) ↦[obS7.view.set]{fullShare} f) := rfl
@[sl_rounds] theorem xrPay_7 (c : Dev nD) : xrPay m c 7 =
    iprop(∃ f : Buf (Elt F) (ibM.view.loc (c : Thread nD τ)), (ibM.access sl7).loc (c : Thread nD τ) ↦[(ibM.access sl7).set]{fullShare} (ibM.access sl7).write (Elt F) f (KVal.yblk16 m (xpeer c) 7) Finset.univ) := rfl

/-! ## What each device owes at launch; the levels -/

/-- The eight row copies into the x-peer, summed so that the copy of slot 0 peels the last summand. -/
def OX (c : Dev nD) : CellTallies nD τ sig Unit :=
  tallyAt ((xpeer c : Thread nD τ), .dma xrS7) () NX
    + tallyAt ((xpeer c : Thread nD τ), .dma xrS6) () NX
    + tallyAt ((xpeer c : Thread nD τ), .dma xrS5) () NX
    + tallyAt ((xpeer c : Thread nD τ), .dma xrS4) () NX
    + tallyAt ((xpeer c : Thread nD τ), .dma xrS3) () NX
    + tallyAt ((xpeer c : Thread nD τ), .dma xrS2) () NX
    + tallyAt ((xpeer c : Thread nD τ), .dma xrS1) () NX
    + tallyAt ((xpeer c : Thread nD τ), .dma xrS0) () NX
/-- The state copy into the y-peer, owed by a device with my = 0 only. -/
def OY (c : Dev nD) : CellTallies nD τ sig Unit := if c.val % 2 = 0 then tallyAt (yrCell (ypeer c)) () NY else 0
/-- After the entry handshake: the copies. -/
def O₂ (c : Dev nD) : CellTallies nD τ sig Unit := OX c + OY c
/-- After the first signal: the copies and the x-peer's barrier unit. -/
def O₁ (c : Dev nD) : CellTallies nD τ sig Unit := O₂ c + tallyAt (barCell (xpeer c)) () 1
/-- At launch: those and the y-peer's barrier unit, which the first signal pays. -/
def O₀ (c : Dev nD) : CellTallies nD τ sig Unit := O₁ c + tallyAt (barCell (ypeer c)) () 1

theorem O₂_even {c : Dev nD} (h : c.val % 2 = 0) : O₂ c = OX c + tallyAt (yrCell (ypeer c)) () NY := by
  unfold O₂ OY; rw [if_pos h]
theorem O₂_odd {c : Dev nD} (h : c.val % 2 = 1) : O₂ c = OX c := by
  unfold O₂ OY; rw [if_neg (by omega), add_zero]

def L (g : GSem nD τ sig) : Finset Unit := if g.1.2 = .tc then {()} else ∅
/-- Barrier cells at 1, y-receive cells at 2, x-receive cells at 3, everything else (staging, send cells) at 0. -/
def lv (g : GSem nD τ sig) (_ : Unit) : ℕ :=
  match kindOf g.2 with
  | .bar => 1
  | .yr => 2
  | .xr _ => 3
  | .ys => 0
  | .xs _ => 0
  | .other => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [kind_bar]
theorem lv_yr (c : Dev nD) (u : Unit) : lv (yrCell c) u = 2 := by dsimp only [lv]; rw [kind_yr]
theorem lv_xr (c : Dev nD) (s : Fin 8) (u : Unit) : lv (xrCell c s) u = 3 := by dsimp only [lv]; rw [kind_xr]

theorem OX_pos {c : Dev nD} {g : GSem nD τ sig} {u : Unit} (h : 0 < OX c g u) : ∃ s : Fin 8, g = xrCell (xpeer c) s := by
  unfold OX at h
  rcases Pipeline.add_pos_cases h with h | h
  swap
  · exact ⟨0, (Pipeline.tallyAt_pos h).1⟩
  rcases Pipeline.add_pos_cases h with h | h
  swap
  · exact ⟨1, (Pipeline.tallyAt_pos h).1⟩
  rcases Pipeline.add_pos_cases h with h | h
  swap
  · exact ⟨2, (Pipeline.tallyAt_pos h).1⟩
  rcases Pipeline.add_pos_cases h with h | h
  swap
  · exact ⟨3, (Pipeline.tallyAt_pos h).1⟩
  rcases Pipeline.add_pos_cases h with h | h
  swap
  · exact ⟨4, (Pipeline.tallyAt_pos h).1⟩
  rcases Pipeline.add_pos_cases h with h | h
  swap
  · exact ⟨5, (Pipeline.tallyAt_pos h).1⟩
  rcases Pipeline.add_pos_cases h with h | h
  swap
  · exact ⟨6, (Pipeline.tallyAt_pos h).1⟩
  exact ⟨7, (Pipeline.tallyAt_pos h).1⟩

theorem O₂_pos {c : Dev nD} {g : GSem nD τ sig} {u : Unit} (h : 0 < O₂ c g u) :
    (∃ s : Fin 8, g = xrCell (xpeer c) s) ∨ g = yrCell (ypeer c) := by
  unfold O₂ OY at h
  rcases Pipeline.add_pos_cases h with h | h
  · exact Or.inl (OX_pos h)
  · split at h
    · exact Or.inr (Pipeline.tallyAt_pos h).1
    · exact absurd h (Nat.lt_irrefl 0)

theorem O₀_pos {c : Dev nD} {g : GSem nD τ sig} {u : Unit} (h : 0 < O₀ c g u) :
    (∃ s : Fin 8, g = xrCell (xpeer c) s) ∨ g = yrCell (ypeer c) ∨ g = barCell (xpeer c) ∨ g = barCell (ypeer c) := by
  unfold O₀ O₁ at h
  rcases Pipeline.add_pos_cases h with h | h
  · rcases Pipeline.add_pos_cases h with h | h
    · rcases O₂_pos h with h | h
      · exact Or.inl h
      · exact Or.inr (Or.inl h)
    · exact Or.inr (Or.inr (Or.inl (Pipeline.tallyAt_pos h).1))
  · exact Or.inr (Or.inr (Or.inr (Pipeline.tallyAt_pos h).1))

/-- At its barrier wait a device owes copies only: y-receive and x-receive cells, above its barrier cell. -/
theorem mayWait_bar (c : Dev nD) : (levAts L lv : sProp 𝕄) ⊢ MayWait (c : Thread nD τ) (.reg barS) () (O₂ c) :=
  Pipeline.mayWait_of_levAts (by rw [L_tc]; exact Finset.mem_singleton_self _) fun g i hg => by
    rcases O₂_pos hg with ⟨s, rfl⟩ | rfl
    · exact ⟨by rw [L_tc]; exact Finset.mem_singleton_self _, by rw [lv_bar, lv_xr]; decide⟩
    · exact ⟨by rw [L_tc]; exact Finset.mem_singleton_self _, by rw [lv_bar, lv_yr]; decide⟩

/-- At its y-receive wait a device (my = 1) owes the eight row copies: x-receive cells, above its y-receive cell. -/
theorem mayWait_yr (c : Dev nD) : (levAts L lv : sProp 𝕄) ⊢ MayWait (c : Thread nD τ) (.dma yrS) () (OX c) :=
  Pipeline.mayWait_of_levAts (by rw [L_tc]; exact Finset.mem_singleton_self _) fun g i hg => by
    obtain ⟨s, rfl⟩ := OX_pos hg
    exact ⟨by rw [L_tc]; exact Finset.mem_singleton_self _, by rw [lv_yr, lv_xr]; decide⟩

/-! ## The cells by number, and what every device knows of all of them -/

/-- A device's nineteen cells: its barrier cell, its y-send and y-receive cells, its eight x-send and eight x-receive cells. -/
def csem : Fin 19 → SemLoc sig
  | 0 => .reg barS
  | 1 => .dma ysS
  | 2 => .dma yrS
  | 3 => .dma xsS0
  | 4 => .dma xsS1
  | 5 => .dma xsS2
  | 6 => .dma xsS3
  | 7 => .dma xsS4
  | 8 => .dma xsS5
  | 9 => .dma xsS6
  | 10 => .dma xsS7
  | 11 => .dma xrS0
  | 12 => .dma xrS1
  | 13 => .dma xrS2
  | 14 => .dma xrS3
  | 15 => .dma xrS4
  | 16 => .dma xrS5
  | 17 => .dma xrS6
  | 18 => .dma xrS7
  | ⟨n + 19, h⟩ => absurd h (by omega)
abbrev kcell (ck : Dev nD × Fin 19) : GSem nD τ sig := ((ck.1 : Thread nD τ), csem ck.2)
def kxs (s : Fin 8) : Fin 19 := ⟨3 + s.val, by omega⟩
def kxr (s : Fin 8) : Fin 19 := ⟨11 + s.val, by omega⟩
theorem csem_kxs (s : Fin 8) : csem (kxs s) = .dma (xsS s) := by fin_cases s <;> rfl
theorem csem_kxr (s : Fin 8) : csem (kxr s) = .dma (xrS s) := by fin_cases s <;> rfl

/-- Every cell's invariant, under the names `K` the launch allocated them at, and that every cell is at its first round. -/
def records (K : Dev nD × Fin 19 → ℕ) : sProp 𝕄 :=
  iprop((bigSep Finset.univ fun ck : Dev nD × Fin 19 => cellInv ER (sched m) (K ck) (kcell ck))
    ∗ bigSep Finset.univ fun ck : Dev nD × Fin 19 => reached ER (kcell ck) 0)

instance records_persistent (K : Dev nD × Fin 19 → ℕ) : BI.Persistent (records m K) := by unfold records; infer_instance

theorem inv_at (K : Dev nD × Fin 19 → ℕ) (ck : Dev nD × Fin 19) : records m K ⊢ cellInv ER (sched m) (K ck) (kcell ck) := by
  unfold records; iintro ⟨#HI, -⟩
  iapply (show (bigSep Finset.univ fun ck : Dev nD × Fin 19 => (cellInv ER (sched m) (K ck) (kcell ck) : sProp 𝕄)) ⊢ cellInv ER (sched m) (K ck) (kcell ck) from bigSep_elim (Finset.mem_univ ck))
  iexact HI
theorem reached_at (K : Dev nD × Fin 19 → ℕ) (ck : Dev nD × Fin 19) : records m K ⊢ reached ER (kcell ck) 0 := by
  unfold records; iintro ⟨-, #HR⟩
  iapply (show (bigSep Finset.univ fun ck : Dev nD × Fin 19 => (reached ER (kcell ck) 0 : sProp 𝕄)) ⊢ reached ER (kcell ck) 0 from bigSep_elim (Finset.mem_univ ck))
  iexact HR

theorem inv_bar (K : Dev nD × Fin 19 → ℕ) (c : Dev nD) : records m K ⊢ cellInv ER (sched m) (K (c, 0)) (barCell c) := inv_at m K (c, 0)
theorem inv_ys (K : Dev nD × Fin 19 → ℕ) (c : Dev nD) : records m K ⊢ cellInv ER (sched m) (K (c, 1)) (ysCell c) := inv_at m K (c, 1)
theorem inv_yr (K : Dev nD × Fin 19 → ℕ) (c : Dev nD) : records m K ⊢ cellInv ER (sched m) (K (c, 2)) (yrCell c) := inv_at m K (c, 2)
theorem inv_xs (K : Dev nD × Fin 19 → ℕ) (c : Dev nD) (s : Fin 8) : records m K ⊢ cellInv ER (sched m) (K (c, kxs s)) (xsCell c s) := by
  have h := inv_at m K (c, kxs s); rwa [show kcell (c, kxs s) = xsCell c s from congrArg (Prod.mk _) (csem_kxs s)] at h
theorem inv_xr (K : Dev nD × Fin 19 → ℕ) (c : Dev nD) (s : Fin 8) : records m K ⊢ cellInv ER (sched m) (K (c, kxr s)) (xrCell c s) := by
  have h := inv_at m K (c, kxr s); rwa [show kcell (c, kxr s) = xrCell c s from congrArg (Prod.mk _) (csem_kxr s)] at h
theorem reached_bar (K : Dev nD × Fin 19 → ℕ) (c : Dev nD) : records m K ⊢ reached ER (barCell c) 0 := reached_at m K (c, 0)
theorem reached_ys (K : Dev nD × Fin 19 → ℕ) (c : Dev nD) : records m K ⊢ reached ER (ysCell c) 0 := reached_at m K (c, 1)
theorem reached_yr (K : Dev nD × Fin 19 → ℕ) (c : Dev nD) : records m K ⊢ reached ER (yrCell c) 0 := reached_at m K (c, 2)
theorem reached_xs (K : Dev nD × Fin 19 → ℕ) (c : Dev nD) (s : Fin 8) : records m K ⊢ reached ER (xsCell c s) 0 := by
  have h := reached_at m K (c, kxs s); rwa [show kcell (c, kxs s) = xsCell c s from congrArg (Prod.mk _) (csem_kxs s)] at h
theorem reached_xr (K : Dev nD × Fin 19 → ℕ) (c : Dev nD) (s : Fin 8) : records m K ⊢ reached ER (xrCell c s) 0 := by
  have h := reached_at m K (c, kxr s); rwa [show kcell (c, kxr s) = xrCell c s from congrArg (Prod.mk _) (csem_kxr s)] at h

/-! ## What one device's body starts from and ends with -/

/-- The device's position at the first round of each of its nineteen cells, nothing consumed. -/
def linear (c : Dev nD) : sProp 𝕄 :=
  iprop(atPos ER ((c : Thread nD τ), .reg barS) 0 ∅ 0
    ∗ atPos ER ((c : Thread nD τ), .dma ysS) 0 ∅ 0
    ∗ atPos ER ((c : Thread nD τ), .dma yrS) 0 ∅ 0
    ∗ atPos ER ((c : Thread nD τ), .dma xsS0) 0 ∅ 0
    ∗ atPos ER ((c : Thread nD τ), .dma xsS1) 0 ∅ 0
    ∗ atPos ER ((c : Thread nD τ), .dma xsS2) 0 ∅ 0
    ∗ atPos ER ((c : Thread nD τ), .dma xsS3) 0 ∅ 0
    ∗ atPos ER ((c : Thread nD τ), .dma xsS4) 0 ∅ 0
    ∗ atPos ER ((c : Thread nD τ), .dma xsS5) 0 ∅ 0
    ∗ atPos ER ((c : Thread nD τ), .dma xsS6) 0 ∅ 0
    ∗ atPos ER ((c : Thread nD τ), .dma xsS7) 0 ∅ 0
    ∗ atPos ER ((c : Thread nD τ), .dma xrS0) 0 ∅ 0
    ∗ atPos ER ((c : Thread nD τ), .dma xrS1) 0 ∅ 0
    ∗ atPos ER ((c : Thread nD τ), .dma xrS2) 0 ∅ 0
    ∗ atPos ER ((c : Thread nD τ), .dma xrS3) 0 ∅ 0
    ∗ atPos ER ((c : Thread nD τ), .dma xrS4) 0 ∅ 0
    ∗ atPos ER ((c : Thread nD τ), .dma xrS5) 0 ∅ 0
    ∗ atPos ER ((c : Thread nD τ), .dma xrS6) 0 ∅ 0
    ∗ atPos ER ((c : Thread nD τ), .dma xrS7) 0 ∅ 0)

/-- The tokens of the duties the device pays: the y-peer's barrier duty `false`, the x-peer's barrier duty `true`,
    the state copy's two (its own send duty, the y-peer's receive duty; used on a device with my = 0 only), and
    per slot its own send duty and the x-peer's receive duty. -/
def payToks (c : Dev nD) : sProp 𝕄 :=
  iprop(dutyTok ER (barCell (ypeer c)) 0 false ∗ dutyTok ER (barCell (xpeer c)) 0 true
    ∗ dutyTok ER (ysCell c) 0 false ∗ dutyTok ER (yrCell (ypeer c)) 0 false
    ∗ dutyTok ER ((c : Thread nD τ), .dma xsS0) 0 false ∗ dutyTok ER ((c : Thread nD τ), .dma xsS1) 0 false ∗ dutyTok ER ((c : Thread nD τ), .dma xsS2) 0 false ∗ dutyTok ER ((c : Thread nD τ), .dma xsS3) 0 false ∗ dutyTok ER ((c : Thread nD τ), .dma xsS4) 0 false ∗ dutyTok ER ((c : Thread nD τ), .dma xsS5) 0 false ∗ dutyTok ER ((c : Thread nD τ), .dma xsS6) 0 false ∗ dutyTok ER ((c : Thread nD τ), .dma xsS7) 0 false
    ∗ dutyTok ER ((xpeer c : Thread nD τ), .dma xrS0) 0 false ∗ dutyTok ER ((xpeer c : Thread nD τ), .dma xrS1) 0 false ∗ dutyTok ER ((xpeer c : Thread nD τ), .dma xrS2) 0 false ∗ dutyTok ER ((xpeer c : Thread nD τ), .dma xrS3) 0 false ∗ dutyTok ER ((xpeer c : Thread nD τ), .dma xrS4) 0 false ∗ dutyTok ER ((xpeer c : Thread nD τ), .dma xrS5) 0 false ∗ dutyTok ER ((xpeer c : Thread nD τ), .dma xrS6) 0 false ∗ dutyTok ER ((xpeer c : Thread nD τ), .dma xrS7) 0 false)

/-- The credit the device waits with: its barrier's two units, its y-receive cell's credit when my = 1, and each
    x-receive cell's credit. (A send cell's credit comes from the copy's own departure.) -/
def creds (c : Dev nD) : sProp 𝕄 :=
  iprop(cred (tallyAt (barCell c) () 2)
    ∗ (if c.val % 2 = 1 then cred (tallyAt (yrCell c) () NY) else iprop(emp))
    ∗ cred (tallyAt ((c : Thread nD τ), .dma xrS0) () NX) ∗ cred (tallyAt ((c : Thread nD τ), .dma xrS1) () NX) ∗ cred (tallyAt ((c : Thread nD τ), .dma xrS2) () NX) ∗ cred (tallyAt ((c : Thread nD τ), .dma xrS3) () NX) ∗ cred (tallyAt ((c : Thread nD τ), .dma xrS4) () NX) ∗ cred (tallyAt ((c : Thread nD τ), .dma xrS5) () NX) ∗ cred (tallyAt ((c : Thread nD τ), .dma xrS6) () NX) ∗ cred (tallyAt ((c : Thread nD τ), .dma xrS7) () NX))

/-- The four argument blocks as staged, each whole at the launch memory's contents. -/
def stagedIn (c : Dev nD) : sProp 𝕄 :=
  iprop((x0M.view.loc (c : Thread nD τ) ↦{fullShare} (KVal.argX m c : Buf (Elt F) (x0M.view.loc (c : Thread nD τ))))
    ∗ (x1M.view.loc (c : Thread nD τ) ↦{fullShare} (KVal.argA m c : Buf (Elt F) (x1M.view.loc (c : Thread nD τ))))
    ∗ (x2M.view.loc (c : Thread nD τ) ↦{fullShare} (KVal.argB m c : Buf (Elt F) (x2M.view.loc (c : Thread nD τ))))
    ∗ (x3M.view.loc (c : Thread nD τ) ↦{fullShare} (KVal.argC m c : Buf (Elt F) (x3M.view.loc (c : Thread nD τ)))))

/-- The five scratch buffers, each whole at some contents. -/
def scratch (c : Dev nD) : sProp 𝕄 :=
  iprop((∃ f : Buf (Elt F) (h0M.view.loc (c : Thread nD τ)), h0M.view.loc (c : Thread nD τ) ↦{fullShare} f)
    ∗ (∃ f : Buf (Elt F) (hsM.view.loc (c : Thread nD τ)), hsM.view.loc (c : Thread nD τ) ↦{fullShare} f)
    ∗ (∃ f : Buf (Elt F) (hiM.view.loc (c : Thread nD τ)), hiM.view.loc (c : Thread nD τ) ↦{fullShare} f)
    ∗ (∃ f : Buf (Elt F) (obM.view.loc (c : Thread nD τ)), obM.view.loc (c : Thread nD τ) ↦{fullShare} f)
    ∗ (∃ f : Buf (Elt F) (ibM.view.loc (c : Thread nD τ)), ibM.view.loc (c : Thread nD τ) ↦{fullShare} f))

/-- The device's eighteen own (scoped) semaphores at zero. -/
def ownZero (c : Dev nD) : sProp 𝕄 :=
  iprop(semVal ((c : Thread nD τ), .dma ysS) 0
    ∗ semVal ((c : Thread nD τ), .dma yrS) 0
    ∗ semVal ((c : Thread nD τ), .dma xsS0) 0
    ∗ semVal ((c : Thread nD τ), .dma xsS1) 0
    ∗ semVal ((c : Thread nD τ), .dma xsS2) 0
    ∗ semVal ((c : Thread nD τ), .dma xsS3) 0
    ∗ semVal ((c : Thread nD τ), .dma xsS4) 0
    ∗ semVal ((c : Thread nD τ), .dma xsS5) 0
    ∗ semVal ((c : Thread nD τ), .dma xsS6) 0
    ∗ semVal ((c : Thread nD τ), .dma xsS7) 0
    ∗ semVal ((c : Thread nD τ), .dma xrS0) 0
    ∗ semVal ((c : Thread nD τ), .dma xrS1) 0
    ∗ semVal ((c : Thread nD τ), .dma xrS2) 0
    ∗ semVal ((c : Thread nD τ), .dma xrS3) 0
    ∗ semVal ((c : Thread nD τ), .dma xrS4) 0
    ∗ semVal ((c : Thread nD τ), .dma xrS5) 0
    ∗ semVal ((c : Thread nD τ), .dma xrS6) 0
    ∗ semVal ((c : Thread nD τ), .dma xrS7) 0)

/-- What device `c`'s body starts from: every cell's invariant and first round; its positions; the tokens it pays with;
    the credit it waits with; the levels; what it owes; the staged arguments, the output staging buffer at any contents,
    the scratch buffers at any contents. -/
def bodyPre (K : Dev nD × Fin 19 → ℕ) (c : Dev nD) : sProp 𝕄 :=
  iprop(records m K ∗ linear c ∗ payToks c ∗ creds c ∗ levAts L lv
    ∗ (∃ W : Waits sig Unit, owes (c : Thread nD τ) (O₀ c) W)
    ∗ stagedIn m c
    ∗ (∃ f : Buf (Elt F) (x4M.view.loc (c : Thread nD τ)), x4M.view.loc (c : Thread nD τ) ↦{fullShare} f)
    ∗ scratch c)

/-- What it ends with: nothing owed; the staged arguments as they were; the output staging buffer at the named result;
    the scratch buffers at some contents; its own semaphores at zero, their cells closed. -/
def bodyPost (c : Dev nD) : sProp 𝕄 :=
  iprop((∃ W : Waits sig Unit, owes (c : Thread nD τ) 0 W)
    ∗ stagedIn m c
    ∗ (x4M.view.loc (c : Thread nD τ) ↦{fullShare} KVal.outAt m c)
    ∗ scratch c
    ∗ ownZero c)

/-- The body lemma, as the launch takes it: on every device, under any names, the kernel's body at the one grid point
    runs from `bodyPre` to `bodyPost`. -/
def SoundBody : Prop :=
  ∀ (K : Dev nD × Fin 19 → ℕ) (c : Dev nD),
    bodyPre m K c ⊢ wp frame (wpE (defs₀ (F := F)) 𝒱₀ c none) Set.univ (Gen.bodyAt0 (F := F) Gen.t0_0) (fun _ => bodyPost m c)

/-
  THE BODY LEMMA this file's launch takes as a hypothesis (`SoundBody m` above, unfolded):

    theorem sound_body (K : Dev nD × Fin 19 → ℕ) (c : Dev nD) :
        KProto.bodyPre m K c ⊢ wp frame (wpE (defs₀ (F := F)) KProto.𝒱₀ c none) Set.univ (Gen.bodyAt0 (F := F) Gen.t0_0)
          (fun _ => KProto.bodyPost m c)
-/

end Cert.KernelIdeal.KProto

end
-- ==== Proof.KDat.lean ====
/-
  The proof data of the kernel's one grid point on a device — what each window's staging buffer holds after the body,
  the invariant before and after the point, what the device owes — and the body obligation from the body lemma.
-/
import proofs.«900482_g7700000000000483_dist_ssm_v7x_xy2x2_y_b4_s256_d256_n16_f32_1_alg».proof.Proof.KProto
import Idealize.ShloMosaic.Lib.Pipeline.Launch
import Idealize.ShloMosaic.Lib.Pipeline.Kit
import Idealize.ShloMosaic.Lib.Tactic

noncomputable section

namespace Cert.KernelIdeal.KDat

open Cert.KernelIdeal Cert.KernelIdeal.Gen Cert.KernelIdeal.KProto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KVal (ypeer xpeer ypeer_ypeer xpeer_xpeer)

variable {F : FTy → Type} [FloatOps F]

local notation "𝕄" => MT nD τ sig Unit (Elt F) ℕ UU ℕ

variable (m : (ℓ : Loc nD τ sig) → Buf (Elt F) ℓ)

/-! ## The pipeline's proof data -/

/-- Before the point: the ghost state at some names, the launch credit, the levels, the scratch buffers. -/
def Φ₀ (c : Dev nD) : sProp 𝕄 :=
  iprop((∃ K : Dev nD × Fin 19 → ℕ, iprop(records m K ∗ linear c ∗ payToks c)) ∗ creds c ∗ levAts L lv ∗ scratch c)
/-- After it: the scratch buffers and the device's own semaphores at zero. -/
def Φ₁ (c : Dev nD) : sProp 𝕄 := iprop(scratch c ∗ ownZero c)

def dats (_ : Fin 1) (c : Dev nD) : Dat τ (Elt F) Unit ℕ UU ℕ cfg0 c where
  A w := m ((cfg0.win w).arr.view.loc (c : Thread nD τ))
  after w _ := match w with
    | ⟨0, _⟩ => KVal.argX m c
    | ⟨1, _⟩ => KVal.argA m c
    | ⟨2, _⟩ => KVal.argB m c
    | ⟨3, _⟩ => KVal.argC m c
    | ⟨4, _⟩ => KVal.outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before (0 : Fin 5) Gen.t0_0 d = KVal.argX m c := by
  unfold Dat.before; rw [if_pos (Gen.fetch0_0 _)]
  show (dats m 0 c).blockOf _ Gen.t0_0 = _
  unfold Dat.blockOf
  exact Memref.read_access_unit_zero (Elt F) main_arg0 (funext fun a => Nat.zero_mul _) _ _
theorem before_1 (c : Dev nD) (d) : (dats m 0 c).before (1 : Fin 5) Gen.t0_0 d = KVal.argA m c := by
  unfold Dat.before; rw [if_pos (Gen.fetch0_1 _)]
  show (dats m 0 c).blockOf _ Gen.t0_0 = _
  unfold Dat.blockOf
  exact Memref.read_access_unit_zero (Elt F) main_arg1 (funext fun a => Nat.zero_mul _) _ _
theorem before_2 (c : Dev nD) (d) : (dats m 0 c).before (2 : Fin 5) Gen.t0_0 d = KVal.argB m c := by
  unfold Dat.before; rw [if_pos (Gen.fetch0_2 _)]
  show (dats m 0 c).blockOf _ Gen.t0_0 = _
  unfold Dat.blockOf
  exact Memref.read_access_unit_zero (Elt F) main_arg2 (funext fun a => Nat.zero_mul _) _ _
theorem before_3 (c : Dev nD) (d) : (dats m 0 c).before (3 : Fin 5) Gen.t0_0 d = KVal.argC m c := by
  unfold Dat.before; rw [if_pos (Gen.fetch0_3 _)]
  show (dats m 0 c).blockOf _ Gen.t0_0 = _
  unfold Dat.blockOf
  exact Memref.read_access_unit_zero (Elt F) main_arg3 (funext fun a => Nat.zero_mul _) _ _
/-! ## The body obligation -/

/-- What the body leaves is what the pipeline takes back at the next point. -/
theorem post_entails (c : Dev nD) :
    bodyPost m c ⊢ iprop(Φ₁ c ∗ (dats m 0 c).owesAt () Gen.t0_0.succ
      ∗ stg c cc0_stg0_0 ((dats m 0 c).after 0 Gen.t0_0) ∗ stg c cc0_stg1_0 ((dats m 0 c).after 1 Gen.t0_0)
      ∗ stg c cc0_stg2_0 ((dats m 0 c).after 2 Gen.t0_0) ∗ stg c cc0_stg3_0 ((dats m 0 c).after 3 Gen.t0_0)
      ∗ stg c cc0_stg4_0 ((dats m 0 c).after 4 Gen.t0_0)) := by
  unfold bodyPost Φ₁ stagedIn Dat.owesAt Pipeline.owesWithin
  rw [show (dats m 0 c).owed Gen.t0_0.succ = 0 from rfl]
  iintro ⟨⟨%W, HO⟩, ⟨H0, H1, H2, H3⟩, H4, Hscr, Hz⟩
  isplitl [Hscr Hz]
  · isplitl [Hscr] <;> iassumption
  isplitl [HO]
  · iexists W
    isplitr; · ipureintro; exact fun _ _ => Or.inl trivial
    iexact HO
  isplitl [H0]
  · iexists _; isplitr; · (ipureintro; dsimp only [dats])
    iexact H0
  isplitl [H1]
  · iexists _; isplitr; · (ipureintro; dsimp only [dats])
    iexact H1
  isplitl [H2]
  · iexists _; isplitr; · (ipureintro; dsimp only [dats])
    iexact H2
  isplitl [H3]
  · iexists _; isplitr; · (ipureintro; dsimp only [dats])
    iexact H3
  iexists _; isplitr; · (ipureintro; dsimp only [dats])
  iexact H4

/-- The library's body obligation on device `c`, from the body lemma. -/
theorem body_obligation (hbody : SoundBody m) (c : Dev nD) : BodyObligation (dats (F := F) m 0 c) (defs₀ (F := F)) 𝒱₀ () Set.univ := fun t => by
  rw [Gen.fin_N0 t]
  rw [Gen.bigSep_W0, Gen.bigSep_W0]
  simp only [owns_whole_eq]
  show iprop(Φ₀ m c ∗ (dats m 0 c).owesAt () Gen.t0_0.castSucc
      ∗ (∃ d, stg c cc0_stg0_0 ((dats m 0 c).before 0 Gen.t0_0 d)) ∗ (∃ d, stg c cc0_stg1_0 ((dats m 0 c).before 1 Gen.t0_0 d))
      ∗ (∃ d, stg c cc0_stg2_0 ((dats m 0 c).before 2 Gen.t0_0 d)) ∗ (∃ d, stg c cc0_stg3_0 ((dats m 0 c).before 3 Gen.t0_0 d))
      ∗ (∃ d, stg c cc0_stg4_0 ((dats m 0 c).before 4 Gen.t0_0 d)))
    ⊢ wp frame (wpE (defs₀ (F := F)) 𝒱₀ c none) Set.univ (Gen.bodyAt0 (F := F) Gen.t0_0) (fun _ =>
      iprop(Φ₁ c ∗ (dats m 0 c).owesAt () Gen.t0_0.succ
        ∗ stg c cc0_stg0_0 ((dats m 0 c).after 0 Gen.t0_0) ∗ stg c cc0_stg1_0 ((dats m 0 c).after 1 Gen.t0_0)
        ∗ stg c cc0_stg2_0 ((dats m 0 c).after 2 Gen.t0_0) ∗ stg c cc0_stg3_0 ((dats m 0 c).after 3 Gen.t0_0)
        ∗ stg c cc0_stg4_0 ((dats m 0 c).after 4 Gen.t0_0)))
  unfold Φ₀ Dat.owesAt Pipeline.owesWithin
  rw [show (dats m 0 c).owed Gen.t0_0.castSucc = O₀ c from rfl]
  iintro ⟨⟨⟨%K, Hrec, Hlin, Htok⟩, Hcr, Hlev, Hscr⟩, ⟨%W, %hW, HO⟩, ⟨%d0, %g0, %hg0, H0⟩, ⟨%d1, %g1, %hg1, H1⟩, ⟨%d2, %g2, %hg2, H2⟩, ⟨%d3, %g3, %hg3, H3⟩, ⟨%d4, %g4, %hg4, H4⟩⟩
  rw [before_0] at hg0; rw [before_1] at hg1; rw [before_2] at hg2; rw [before_3] at hg3
  subst hg0 hg1 hg2 hg3
  iapply ((hbody K c).trans (wp_mono _ _ _ fun _ => post_entails m c))
  unfold bodyPre stagedIn
  isplitl [Hrec]; · iexact Hrec
  isplitl [Hlin]; · iexact Hlin
  isplitl [Htok]; · iexact Htok
  isplitl [Hcr]; · iexact Hcr
  isplitl [Hlev]; · iexact Hlev
  isplitl [HO]; · iexists W; iexact HO
  isplitl [H0 H1 H2 H3]
  · isplitl [H0]; · iexact H0
    isplitl [H1]; · iexact H1
    isplitl [H2]; · iexact H2
    iexact H3
  isplitl [H4]; · iexists g4; iexact H4
  iexact Hscr

end Cert.KernelIdeal.KDat

end
-- ==== Proof.KCred.lean ====
/-
  The credit the launch deals a device, under the dues the devices owe at launch: the two barrier units owed to a
  device's barrier cell by its two peers join into that cell's credit of 2; the eight row copies owed to its eight
  x-receive cells by its x-peer give those cells' credits; and the state copy owed by a device with my = 0 to its
  y-peer's y-receive cell gives a device with my = 1 that cell's credit. Each peer map is an involution of the devices,
  so the dues summed over the issuers are each device's own waits' credit.
-/
import proofs.«900482_g7700000000000483_dist_ssm_v7x_xy2x2_y_b4_s256_d256_n16_f32_1_alg».proof.Proof.KProto
import Idealize.ShloMosaic.Lib.Pipeline.Launch
import Idealize.ShloMosaic.Lib.Pipeline.Kit
import Idealize.ShloMosaic.Lib.Tactic

noncomputable section

namespace Cert.KernelIdeal.KCred

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KVal (ypeer xpeer ypeer_ypeer xpeer_xpeer)
open Cert.KernelIdeal.KProto

variable {F : FTy → Type} [FloatOps F]

local notation "𝕄" => MT nD τ sig Unit (Elt F) ℕ UU ℕ

/-- Every device owing n units on semaphore sm of its x-peer, the launch deals a device the credit of n on its own sm. -/
theorem lc_x (sm : SemLoc sig) (n : ℕ) (c : Dev nD) :
    (Pipeline.launchCred (fun d => tallyAt ((xpeer d : Thread nD τ), sm) () n) c : sProp 𝕄)
      ⊢ cred (tallyAt ((c : Thread nD τ), sm) () n) :=
  Pipeline.launchCred_tallyAt sm xpeer xpeer xpeer_xpeer xpeer_xpeer () n c

/-- The same for the y-peer. -/
theorem lc_y (sm : SemLoc sig) (n : ℕ) (c : Dev nD) :
    (Pipeline.launchCred (fun d => tallyAt ((ypeer d : Thread nD τ), sm) () n) c : sProp 𝕄)
      ⊢ cred (tallyAt ((c : Thread nD τ), sm) () n) :=
  Pipeline.launchCred_tallyAt sm ypeer ypeer ypeer_ypeer ypeer_ypeer () n c

/-- The two peers' barrier units join into the barrier cell's credit of 2. -/
theorem lc_bar (c : Dev nD) :
    (iprop(Pipeline.launchCred (fun d => tallyAt (barCell (xpeer d)) () 1) c
      ∗ Pipeline.launchCred (fun d => tallyAt (barCell (ypeer d)) () 1) c) : sProp 𝕄)
      ⊢ cred (tallyAt (barCell c) () 2) := by
  refine (BIClass.sep_mono (lc_x (F := F) (.reg barS) 1 c) (lc_y (F := F) (.reg barS) 1 c)).trans ?_
  refine ((cred_add _ _).2).trans (Entails.of_eq ?_)
  rw [tallyAt_add]

/-- What a device's y-receive cell is owed, as the cell's owner sees it: the state copy, when my = 1. -/
def TY (c : Dev nD) : CellTallies nD τ sig Unit := if c.val % 2 = 1 then tallyAt (yrCell c) () NY else 0

/-- What a device owes its y-peer's y-receive cell is what the peer's cell is owed. -/
theorem OY_eq (d : Dev nD) : OY d = TY (ypeer d) := by
  unfold OY TY
  rw [KVal.ypeer_mod]
  by_cases h : d.val % 2 = 0
  · rw [if_pos h, if_pos (by omega)]
  · rw [if_neg h, if_neg (by omega)]

/-- Summed over the devices, the state copies owed are the state copies the y-receive cells are owed. -/
theorem sum_OY : (∑ d, OY d) = ∑ d, TY d :=
  Fintype.sum_equiv (Function.Involutive.toPerm ypeer ypeer_ypeer) _ _ (fun d => OY_eq d)

/-- A one-cell tally is nonzero only at its cell. -/
theorem tallyAt_ne_zero {g0 g : GSem nD τ sig} {k : ℕ}
    (h : (tallyAt g0 () k : CellTallies nD τ sig Unit) g ≠ 0) : g = g0 := by
  by_contra hne
  exact h (by unfold tallyAt tallyOn; exact Pi.single_eq_of_ne hne _)

/-- The launch deals a device with my = 1 its y-receive cell's credit for the state copy, and a device with my = 0
    nothing for it. -/
theorem lc_OY (c : Dev nD) :
    (Pipeline.launchCred OY c : sProp 𝕄) ⊢ (if c.val % 2 = 1 then cred (tallyAt (yrCell c) () NY) else iprop(emp)) := by
  have hT : ∀ d g, TY d g ≠ 0 → g.1 = (d : Thread nD τ) := by
    intro d g hg
    unfold TY at hg
    split at hg
    · rw [tallyAt_ne_zero hg]
    · exact absurd rfl hg
  rw [Pipeline.launchCred_of_sum OY TY sum_OY hT c]
  unfold TY
  split
  · exact .rfl
  · rw [cred_zero]

/-- The launch deals each device the credit it waits with. -/
theorem creds_of_launch (c : Dev nD) : (Pipeline.launchCred O₀ c : sProp 𝕄) ⊢ creds c := by
  rw [show (O₀ : Dev nD → CellTallies nD τ sig Unit) = fun d => O₁ d + tallyAt (barCell (ypeer d)) () 1 from rfl,
    Pipeline.launchCred_add,
    show (O₁ : Dev nD → CellTallies nD τ sig Unit) = fun d => O₂ d + tallyAt (barCell (xpeer d)) () 1 from rfl,
    Pipeline.launchCred_add,
    show (O₂ : Dev nD → CellTallies nD τ sig Unit) = fun d => OX d + OY d from rfl,
    Pipeline.launchCred_add]
  unfold OX
  rw [Pipeline.launchCred_add, Pipeline.launchCred_add, Pipeline.launchCred_add, Pipeline.launchCred_add,
    Pipeline.launchCred_add, Pipeline.launchCred_add, Pipeline.launchCred_add]
  unfold creds
  iintro ⟨⟨⟨⟨⟨⟨⟨⟨⟨⟨H7, H6⟩, H5⟩, H4⟩, H3⟩, H2⟩, H1⟩, H0⟩, HY⟩, Hbx⟩, Hby⟩
  isplitl [Hbx Hby]
  · iapply (lc_bar (F := F) c)
    isplitl [Hbx]
    · iexact Hbx
    · iexact Hby
  isplitl [HY]
  · iapply (lc_OY (F := F) c)
    iexact HY
  isplitl [H0]
  · iapply (lc_x (F := F) (.dma xrS0) NX c)
    iexact H0
  isplitl [H1]
  · iapply (lc_x (F := F) (.dma xrS1) NX c)
    iexact H1
  isplitl [H2]
  · iapply (lc_x (F := F) (.dma xrS2) NX c)
    iexact H2
  isplitl [H3]
  · iapply (lc_x (F := F) (.dma xrS3) NX c)
    iexact H3
  isplitl [H4]
  · iapply (lc_x (F := F) (.dma xrS4) NX c)
    iexact H4
  isplitl [H5]
  · iapply (lc_x (F := F) (.dma xrS5) NX c)
    iexact H5
  isplitl [H6]
  · iapply (lc_x (F := F) (.dma xrS6) NX c)
    iexact H6
  · iapply (lc_x (F := F) (.dma xrS7) NX c)
    iexact H7

end Cert.KernelIdeal.KCred

end
-- ==== Proof.KArrays.lean ====
/-
  The arrays when the kernel's one grid point is done: the four input arrays hold what the launch memory held (an input
  window is never written back), and the output array holds what the body left in the output staging buffer, the
  write-back writing the whole array through the block at zero offsets.
-/
import proofs.«900482_g7700000000000483_dist_ssm_v7x_xy2x2_y_b4_s256_d256_n16_f32_1_alg».proof.Proof.KDat

noncomputable section

namespace Cert.KernelIdeal.KArrays

open Cert.KernelIdeal Cert.KernelIdeal.Gen Cert.KernelIdeal.KProto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KVal (ypeer xpeer ypeer_ypeer xpeer_xpeer)
open Cert.KernelIdeal.KDat

variable {F : FTy → Type} [FloatOps F]

variable (m : (ℓ : Loc nD τ sig) → Buf (Elt F) ℓ)

/-- The first input array is never written: it holds the launch memory's contents. -/
theorem final_in0 (c : Dev nD) : (dats m 0 c).arrAt (0 : Fin 5) cfg0.N = m ((c.tc : Thread nD τ).loc main_arg0) := by
  rw [(dats m 0 c).arrAt_in (0 : Fin 5) rfl _]
  rfl
/-- The second input array likewise. -/
theorem final_in1 (c : Dev nD) : (dats m 0 c).arrAt (1 : Fin 5) cfg0.N = m ((c.tc : Thread nD τ).loc main_arg1) := by
  rw [(dats m 0 c).arrAt_in (1 : Fin 5) rfl _]
  rfl
/-- The third input array likewise. -/
theorem final_in2 (c : Dev nD) : (dats m 0 c).arrAt (2 : Fin 5) cfg0.N = m ((c.tc : Thread nD τ).loc main_arg2) := by
  rw [(dats m 0 c).arrAt_in (2 : Fin 5) rfl _]
  rfl
/-- The fourth input array likewise. -/
theorem final_in3 (c : Dev nD) : (dats m 0 c).arrAt (3 : Fin 5) cfg0.N = m ((c.tc : Thread nD τ).loc main_arg3) := by
  rw [(dats m 0 c).arrAt_in (3 : Fin 5) rfl _]
  rfl

/-- The output array after the one write-back holds what the body left in the output staging buffer. -/
theorem final_out (c : Dev nD) : (dats m 0 c).arrAt (4 : Fin 5) cfg0.N = KVal.outAtRes m c := by
  have hN : cfg0.N = 1 := Gen.N_0
  refine (congrArg ((dats m 0 c).arrAt (4 : Fin 5)) hN).trans ?_
  show (dats m 0 c).arrAt (4 : Fin 5) ((Gen.t0_0 : Fin cfg0.N).val + 1) = _
  rw [Dat.arrAt_succ, if_pos (Gen.flush0_4 _)]
  refine (Memref.write_access_unit_zero_univ (Elt F) main_v1 (funext fun a => Nat.zero_mul _) _ _ _).trans ?_
  show (cfg0.win (4 : Fin 5)).cut (cfg0.grid.coords Gen.t0_0) ((dats m 0 c).after (4 : Fin 5) Gen.t0_0) = _
  dsimp only [dats]
  rfl

end Cert.KernelIdeal.KArrays

end
-- ==== Proof.KLaunch.lean ====
/-
  The launch of the kernel on the four devices: the ghost state dealt at launch (every cell's invariant allocated in
  one step, the duty tokens dealt to the devices that pay them, the launch credit to the devices that wait), the
  levels of the pipeline's own waits, and the run of the program: every weakly fair execution terminates with each
  windowed array at what the proof data names.
-/
import proofs.«900482_g7700000000000483_dist_ssm_v7x_xy2x2_y_b4_s256_d256_n16_f32_1_alg».proof.Proof.KDat
import proofs.«900482_g7700000000000483_dist_ssm_v7x_xy2x2_y_b4_s256_d256_n16_f32_1_alg».proof.Proof.KCred
import proofs.«900482_g7700000000000483_dist_ssm_v7x_xy2x2_y_b4_s256_d256_n16_f32_1_alg».proof.Proof.KArrays
import Idealize.ShloMosaic.Lib.Pipeline.Launch
import Idealize.ShloMosaic.Lib.Pipeline.Kit
import Idealize.ShloMosaic.Lib.Tactic

noncomputable section

namespace Cert.KernelIdeal.KLaunch

open Cert.KernelIdeal Cert.KernelIdeal.Gen Cert.KernelIdeal.KProto Cert.KernelIdeal.KDat
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KVal (ypeer xpeer ypeer_ypeer xpeer_xpeer)

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost state -/

/-- The device's eighteen own (scoped) semaphores, as the launch theorem indexes them. -/
def osem : Fin 18 → SemLoc sig
  | 0 => .dma ysS
  | 1 => .dma yrS
  | 2 => .dma xsS0
  | 3 => .dma xsS1
  | 4 => .dma xsS2
  | 5 => .dma xsS3
  | 6 => .dma xsS4
  | 7 => .dma xsS5
  | 8 => .dma xsS6
  | 9 => .dma xsS7
  | 10 => .dma xrS0
  | 11 => .dma xrS1
  | 12 => .dma xrS2
  | 13 => .dma xrS3
  | 14 => .dma xrS4
  | 15 => .dma xrS5
  | 16 => .dma xrS6
  | 17 => .dma xrS7
  | ⟨n + 18, h⟩ => absurd h (by omega)

theorem ownSemFacts : Pipeline.OwnSemFacts cfg0.spec osem := by decide

theorem share_eq (c : Dev nD) (w : Fin cfg0.W) : (dats m 0 c).share w = fullShare := by unfold Dat.share; split <;> rfl

theorem csem_injective : Function.Injective (csem : Fin 19 → SemLoc sig) := by decide
theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duties of a device's own cells, numbered: the barrier's `false` and `true`, then the one duty of each other cell. -/
def tk (j : Fin 20) : Fin 19 × Bool :=
  if j.val = 0 then (0, false) else if j.val = 1 then (0, true) else (⟨j.val - 1, by omega⟩, false)
theorem tk_injective : Function.Injective tk := by decide
abbrev tokOf (cj : Dev nD × Fin 20) : GSem nD τ sig × ℕ × Bool := (kcell (cj.1, (tk cj.2).1), 0, (tk cj.2).2)
theorem tokOf_injective : Function.Injective (tokOf : Dev nD × Fin 20 → GSem nD τ sig × ℕ × Bool) := by
  rintro ⟨c, j⟩ ⟨c', j'⟩ h
  have h1 : kcell (c, (tk j).1) = kcell (c', (tk j').1) := congrArg (fun x : GSem nD τ sig × ℕ × Bool => x.1) h
  have h2 : (tk j).2 = (tk j').2 := congrArg (fun x : GSem nD τ sig × ℕ × Bool => x.2.2) h
  obtain ⟨rfl, h4⟩ := Prod.mk.inj (kcell_injective h1)
  rw [tk_injective (Prod.ext h4 h2)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells, as minted. -/
def toks (c : Dev nD) : sProp 𝕄 := bigSep Finset.univ fun j : Fin 20 => dutyTok ER (tokOf (c, j)).1 0 (tokOf (c, j)).2.2
/-- The same, one by one. -/
def ownToks (c : Dev nD) : sProp 𝕄 :=
  iprop(dutyTok ER ((c : Thread nD τ), .reg barS) 0 false
    ∗ dutyTok ER ((c : Thread nD τ), .reg barS) 0 true
    ∗ dutyTok ER ((c : Thread nD τ), .dma ysS) 0 false
    ∗ dutyTok ER ((c : Thread nD τ), .dma yrS) 0 false
    ∗ dutyTok ER ((c : Thread nD τ), .dma xsS0) 0 false
    ∗ dutyTok ER ((c : Thread nD τ), .dma xsS1) 0 false
    ∗ dutyTok ER ((c : Thread nD τ), .dma xsS2) 0 false
    ∗ dutyTok ER ((c : Thread nD τ), .dma xsS3) 0 false
    ∗ dutyTok ER ((c : Thread nD τ), .dma xsS4) 0 false
    ∗ dutyTok ER ((c : Thread nD τ), .dma xsS5) 0 false
    ∗ dutyTok ER ((c : Thread nD τ), .dma xsS6) 0 false
    ∗ dutyTok ER ((c : Thread nD τ), .dma xsS7) 0 false
    ∗ dutyTok ER ((c : Thread nD τ), .dma xrS0) 0 false
    ∗ dutyTok ER ((c : Thread nD τ), .dma xrS1) 0 false
    ∗ dutyTok ER ((c : Thread nD τ), .dma xrS2) 0 false
    ∗ dutyTok ER ((c : Thread nD τ), .dma xrS3) 0 false
    ∗ dutyTok ER ((c : Thread nD τ), .dma xrS4) 0 false
    ∗ dutyTok ER ((c : Thread nD τ), .dma xrS5) 0 false
    ∗ dutyTok ER ((c : Thread nD τ), .dma xrS6) 0 false
    ∗ dutyTok ER ((c : Thread nD τ), .dma xrS7) 0 false)

/-- What the launch element deals device `c` (the theorem's `G`). -/
def G (c : Dev nD) : sProp 𝕄 :=
  iprop((bigSep Finset.univ fun k : Fin 19 => roundState ER (sched m) (kcell (c, k)) 0)
    ∗ (bigSep Finset.univ fun k : Fin 19 => iprop(atPos ER (kcell (c, k)) 0 ∅ 0 ∗ reached ER (kcell (c, k)) 0)) ∗ toks c)

/-- What the global step makes of it (`G'`). -/
def G' (c : Dev nD) : sProp 𝕄 := iprop(∃ K : Dev nD × Fin 19 → ℕ, iprop(records m K ∗ linear c ∗ payToks c))

theorem bigSep_fin19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

theorem toks_eq (c : Dev nD) : toks (F := F) c = ownToks c := by unfold toks; rw [bigSep_fin20]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 19 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The own semaphores at zero, one by one; -/
theorem ownSems0_eq (c : Dev nD) : (Pipeline.ownSems0 (Ix := Unit) (Name := ℕ) (U := UU) (Lvl := ℕ) (Val := Elt F) (τ := τ) osem c : sProp 𝕄) = ownZero c := by
  rw [Pipeline.ownSems0_eq_of_list c osem [0, 1, 2, 3, 4, 5, 6, 7, 8, 9, 10, 11, 12, 13, 14, 15, 16, 17] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, bigSep_fin19]
  unfold ownZero
  iintro ⟨H, HB⟩
  isplitl [HB]; · iexact HB
  iexact H

/-! ## The global step: every cell's invariant allocated, the tokens dealt to their payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 19 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def yE : Dev nD ≃ Dev nD := ⟨ypeer, ypeer, ypeer_ypeer, ypeer_ypeer⟩
def xE : Dev nD ≃ Dev nD := ⟨xpeer, xpeer, xpeer_xpeer, xpeer_xpeer⟩

theorem perm (e : Dev nD ≃ Dev nD) (Φ : Dev nD → sProp 𝕄) : bigSep Finset.univ Φ ⊢ bigSep Finset.univ (fun c => Φ (e c)) :=
  Entails.of_eq (bigSep_univ_equiv e Φ)

/-- The tokens dealt across the mesh: a barrier's `false` token and a y-receive token to the y-peer, a barrier's `true`
    token and the x-receive tokens to the x-peer; the send tokens stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold ownToks payToks
  simp only [bigSep_sep']
  iintro ⟨T0, T1, T2, T3, T4, T5, T6, T7, T8, T9, T10, T11, T12, T13, T14, T15, T16, T17, T18, T19⟩
  isplitl [T0]
  · iapply (perm yE (fun c : Dev nD => (dutyTok ER (barCell c) 0 false : sProp 𝕄))); iexact T0
  isplitl [T1]
  · iapply (perm xE (fun c : Dev nD => (dutyTok ER (barCell c) 0 true : sProp 𝕄))); iexact T1
  isplitl [T2]; · iexact T2
  isplitl [T3]
  · iapply (perm yE (fun c : Dev nD => (dutyTok ER (yrCell c) 0 false : sProp 𝕄))); iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]
  · iapply (perm xE (fun c : Dev nD => (dutyTok ER ((c : Thread nD τ), .dma xrS0) 0 false : sProp 𝕄))); iexact T12
  isplitl [T13]
  · iapply (perm xE (fun c : Dev nD => (dutyTok ER ((c : Thread nD τ), .dma xrS1) 0 false : sProp 𝕄))); iexact T13
  isplitl [T14]
  · iapply (perm xE (fun c : Dev nD => (dutyTok ER ((c : Thread nD τ), .dma xrS2) 0 false : sProp 𝕄))); iexact T14
  isplitl [T15]
  · iapply (perm xE (fun c : Dev nD => (dutyTok ER ((c : Thread nD τ), .dma xrS3) 0 false : sProp 𝕄))); iexact T15
  isplitl [T16]
  · iapply (perm xE (fun c : Dev nD => (dutyTok ER ((c : Thread nD τ), .dma xrS4) 0 false : sProp 𝕄))); iexact T16
  isplitl [T17]
  · iapply (perm xE (fun c : Dev nD => (dutyTok ER ((c : Thread nD τ), .dma xrS5) 0 false : sProp 𝕄))); iexact T17
  isplitl [T18]
  · iapply (perm xE (fun c : Dev nD => (dutyTok ER ((c : Thread nD τ), .dma xrS6) 0 false : sProp 𝕄))); iexact T18
  iapply (perm xE (fun c : Dev nD => (dutyTok ER ((c : Thread nD τ), .dma xrS7) 0 false : sProp 𝕄))); iexact T19

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 19 → ℕ) (c : Dev nD) : iprop(records m K ∗ iprop(linear c ∗ payToks c)) ⊢ G' m c := by
  unfold G'
  iintro ⟨HR, HL, HT⟩
  iexists K
  isplitl [HR]; · iexact HR
  isplitl [HL] <;> iassumption

theorem linear_eq (c : Dev nD) : (bigSep Finset.univ fun k : Fin 19 => (atPos ER (kcell (c, k)) 0 ∅ 0 : sProp 𝕄)) = linear c := by
  rw [bigSep_fin19]; rfl

theorem regroup :
    (bigSep Finset.univ fun c : Dev nD => iprop((bigSep Finset.univ fun k => iprop(∃ κ : ℕ, cellInv ER (sched m) κ (kcell (c, k))))
          ∗ (bigSep Finset.univ fun k : Fin 19 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 19 => iprop(∃ κ : ℕ, cellInv ER (sched m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 19 => (atPos ER (kcell (c, k)) 0 ∅ 0 : sProp 𝕄)) payToks).symm).trans
      (bigSep_mono fun c _ => show _ ⊢ iprop(linear c ∗ payToks c) from Entails.of_eq (by rw [linear_eq])))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

/-- The pipeline's own waits, on staging semaphores (level 0), sit below everything a device owes. -/
theorem mayWait_stage (c : Dev nD) (q : DmaSem sig) (hq : kindOf (.dma q) = .other) (O : CellTallies nD τ sig Unit) (hO : O = O₀ c ∨ O = 0) :
    (levAts L lv : sProp 𝕄) ⊢ MayWait (c : Thread nD τ) (.dma q) () O := by
  rcases hO with rfl | rfl
  · have h0 : lv ((c : Thread nD τ), .dma q) () = 0 := by dsimp only [lv]; rw [hq]
    exact Pipeline.mayWait_of_levAts (by rw [L_tc]; exact Finset.mem_singleton_self _) fun g i hg => by
      rcases O₀_pos hg with ⟨s, rfl⟩ | rfl | rfl | rfl
      · exact ⟨by rw [L_tc]; exact Finset.mem_singleton_self _, by rw [h0, lv_xr]; decide⟩
      · exact ⟨by rw [L_tc]; exact Finset.mem_singleton_self _, by rw [h0, lv_yr]; decide⟩
      · exact ⟨by rw [L_tc]; exact Finset.mem_singleton_self _, by rw [h0, lv_bar]; decide⟩
      · exact ⟨by rw [L_tc]; exact Finset.mem_singleton_self _, by rw [h0, lv_bar]; decide⟩
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-- What device `c` holds when the region is entered: the ghost state, the launch credit, the levels. -/
def start (c : Dev nD) : sProp 𝕄 := iprop(G' m c ∗ creds c ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (KCred.creds_of_launch (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start G' scratch
  iintro ⟨⟨HG, Hcr, Hlev⟩, -, Hscr⟩
  isplitl [HG]; · iexact HG
  isplitl [Hcr]; · iexact Hcr
  isplitl [Hlev]; · iexact Hlev
  iexact Hscr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  iintro ⟨Hscr, Hz⟩
  isplitr; · iempintro
  isplitl [Hz]; · iexact Hz
  iexact Hscr

/-! ## The run -/

/-- Every windowed array of every device at what the proof data names after the one point. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of four devices, for any float values, from any memory with zero counters: every weakly fair
    execution of the program — the four kernels handshaking on the barrier semaphore, copying the state along the y
    axis and the half-precision rows along the x axis — terminates, and every final state has each windowed array
    at the named contents. -/
theorem run_arrays (hbody : SoundBody m) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The run with the result named: on every device the result array ends as the named pure function of the initial
    memory, and the four argument arrays end as they began. -/
theorem run_main (hbody : SoundBody m) :
    θ_run (defs (F := F)) (onTc (τ := τ) (main (F := F))) ⟨m, fun _ => 0, ρ⟩ (fun r => ∀ c : Dev nD,
        r.2.mem ((c.tc : Thread nD τ).loc main_v1) = KVal.outAtRes m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(h c 4).trans (KArrays.final_out m c), (h c 0).trans (KArrays.final_in0 m c), (h c 1).trans (KArrays.final_in1 m c),
      (h c 2).trans (KArrays.final_in2 m c), (h c 3).trans (KArrays.final_in3 m c)⟩) (run_arrays m ρ hbody)

/-- info: 'Cert.KernelIdeal.KLaunch.run_main' depends on axioms: [propext, Classical.choice, Quot.sound] -/
#guard_msgs in #print axioms run_main

end Cert.KernelIdeal.KLaunch

end
-- ==== Proof.KSlots.lean ====
/-
  The kernel's result blocks read at an index, at the ideal values. Each of the eight [64, 256] blocks a device
  computes for its own two batch rows holds, at row r and channel d, one sum over the 16 state coordinates n of
  (state + decay power · entering state) · output weight: the chunk is 4 q + r / 16, the position inside the chunk
  r % 16. The three small arrays that enter those blocks are read at an index as well.
-/
import proofs.«900482_g7700000000000483_dist_ssm_v7x_xy2x2_y_b4_s256_d256_n16_f32_1_alg».proof.Proof.KVal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KSlots

open Idealize.ShloMosaic Idealize.SL.Sem Cert.KernelIdeal Idealize.ShloMosaic.ValueIdx
open scoped BigOperators

/-! ## Layout operations at the ranks met here, read at an index given by coordinates -/

section Layout
variable {α : Type}

/-- A rank-4 array cut along axis 0 from `o` reads, at `(j, b, c, e)`, the source at `(k, b, c, e)` with `k = o + j`. -/
theorem slice4_axis0_apply {n0 n1 n2 n3 m : Nat} (o : Nat) (X : (⟨4, ![n0, n1, n2, n3]⟩ : Shape).Idx → α)
    (h : (⟨4, ![n0, n1, n2, n3]⟩ : Shape).Slices ![o, 0, 0, 0] ⟨4, ![m, n1, n2, n3]⟩)
    (j : Fin m) (b : Fin n1) (c : Fin n2) (e : Fin n3) (k : Fin n0) (hk : k.val = o + j.val) :
    extractStridedSlice ⟨4, ![m, n1, n2, n3]⟩ ![o, 0, 0, 0] X h (ix4 j b c e) = X (ix4 k b c e) :=
  extractStridedSlice_apply _ _ _ _ _ (fun ax => by
    match ax with
    | ⟨0, _⟩ => exact hk
    | ⟨1, _⟩ => exact (Nat.zero_add _).symm
    | ⟨2, _⟩ => exact (Nat.zero_add _).symm
    | ⟨3, _⟩ => exact (Nat.zero_add _).symm)

/-- A `[1, a, b, c, e]` array cast to `[a, b, c, e]` reads, at `(i, j, k, l)`, the operand at `(0, i, j, k, l)`. -/
theorem shapeCast_1abcd_abcd_apply {a b c e : ℕ} (x : (⟨5, ![1, a, b, c, e]⟩ : Shape).Idx → α)
    (h : (⟨5, ![1, a, b, c, e]⟩ : Shape).ShapeCasts ⟨4, ![a, b, c, e]⟩) (i : Fin a) (j : Fin b) (k : Fin c) (l : Fin e) :
    shapeCast ⟨4, ![a, b, c, e]⟩ x h (ix4 i j k l) = x (ix5 (0 : Fin 1) i j k l) :=
  shapeCast_apply x h _ _ (by
    rw [Shape.rowMajor_val_five, Shape.rowMajor_val_four]
    show (((0 * a + i.val) * b + j.val) * c + k.val) * e + l.val = ((i.val * b + j.val) * c + k.val) * e + l.val
    rw [Nat.zero_mul, Nat.zero_add])

/-- An `[a, b, c]` array cast to `[a, 1, b, c]` reads, at `(i, u, j, k)`, the operand at `(i, j, k)`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_four, Shape.rowMajor_val_three]
    show (i.val * b + j.val) * c + k.val = ((i.val * 1 + u.val) * b + j.val) * c + k.val
    rw [hu, Nat.mul_one, Nat.add_zero])

/-- An `[a, b, c]` array cast to `[a, b, 1, c]` reads, at `(i, j, u, k)`, the operand at `(i, j, k)`. -/
theorem shapeCast_abc_ab1c_apply {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_four, Shape.rowMajor_val_three]
    show (i.val * b + j.val) * c + k.val = ((i.val * b + j.val) * 1 + u.val) * c + k.val
    rw [hu, Nat.mul_one, Nat.add_zero])

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- A `[4, 16, e]` array cast to `[64, e]` reads, at `(r, l)`, the operand at `(r / 16, r % 16, l)`. -/
theorem shapeCast_4x16_64_apply {e : ℕ} (x : (⟨3, ![4, 16, e]⟩ : Shape).Idx → α)
    (h : (⟨3, ![4, 16, e]⟩ : Shape).ShapeCasts ⟨2, ![64, e]⟩) (r : Fin 64) (l : Fin e) :
    shapeCast ⟨2, ![64, e]⟩ x h (ix2 r l) = x (ix3 (⟨r.val / 16, by omega⟩ : Fin 4) (⟨r.val % 16, by omega⟩ : Fin 16) l) :=
  shapeCast_apply x h _ _ (by
    rw [Shape.rowMajor_val_three, Shape.rowMajor_val_two]
    show (r.val / 16 * 16 + r.val % 16) * e + l.val = r.val * e + l.val
    rw [Nat.div_add_mod' r.val 16])

/-- An `[a, 1, c, e]` array broadcast to `[a, b, c, e]` reads, at `(i, j, k, l)`, the operand at `(i, 0, k, l)`. -/
theorem broadcastTo_a1ce_abce_apply {a b c e : ℕ} (v : (⟨4, ![a, 1, c, e]⟩ : Shape).Idx → α)
    (h : (⟨4, ![a, 1, c, e]⟩ : Shape).Broadcasts ⟨4, ![a, b, c, e]⟩) (i : Fin a) (j : Fin b) (k : Fin c) (l : Fin e) :
    broadcastTo ⟨4, ![a, b, c, e]⟩ v h (ix4 i j k l) = v (ix4 i (0 : Fin 1) k l) := by
  refine broadcastTo_apply v h (ix4 i j k l) (ix4 i (0 : Fin 1) k l) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
  | ⟨3, _⟩ =>
    show l.val = if e = 1 then 0 else l.val
    split
    · have := l.isLt; omega
    · rfl

/-- An `[a, b, 1, e]` array broadcast to `[a, b, c, e]` reads, at `(i, j, k, l)`, the operand at `(i, j, 0, l)`. -/
theorem broadcastTo_ab1e_abce_apply {a b c e : ℕ} (v : (⟨4, ![a, b, 1, e]⟩ : Shape).Idx → α)
    (h : (⟨4, ![a, b, 1, e]⟩ : Shape).Broadcasts ⟨4, ![a, b, c, e]⟩) (i : Fin a) (j : Fin b) (k : Fin c) (l : Fin e) :
    broadcastTo ⟨4, ![a, b, c, e]⟩ v h (ix4 i j k l) = v (ix4 i j (0 : Fin 1) l) := by
  refine broadcastTo_apply v h (ix4 i j k l) (ix4 i j (0 : Fin 1) l) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ =>
    show l.val = if e = 1 then 0 else l.val
    split
    · have := l.isLt; omega
    · rfl

/-- An `[a, b, c, 1]` array broadcast to `[a, b, c, e]` reads, at `(i, j, k, l)`, the operand at `(i, j, k, 0)`. -/
theorem broadcastTo_abc1_abce_apply {a b c e : ℕ} (v : (⟨4, ![a, b, c, 1]⟩ : Shape).Idx → α)
    (h : (⟨4, ![a, b, c, 1]⟩ : Shape).Broadcasts ⟨4, ![a, b, c, e]⟩) (i : Fin a) (j : Fin b) (k : Fin c) (l : Fin e) :
    broadcastTo ⟨4, ![a, b, c, e]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

end Layout

/-! ## One block at a row and a channel -/

/-- The chunk the row `r` of the block `q` lies in. -/
abbrev rowCh (q : Fin 4) (r : Fin 64) : Fin 16 := ⟨4 * q.val + r.val / 16, by omega⟩
/-- The position of the row `r` inside its chunk. -/
abbrev rowG (r : Fin 64) : Fin 16 := ⟨r.val % 16, by omega⟩

/-- What the block `q` of batch row `bl` holds at row `r` and channel `d`: the sum over the state coordinate `n` of
    (the in-chunk state + the decay power · the state entering the chunk) · the output weight. -/
def blkForm (ct : S2x16x16x16.Idx → EReal) (pw : S16x16x256.Idx → EReal) (Mv : S2x16x16x256.Idx → EReal)
    (slab : S1x16x16x16x256.Idx → EReal) (bl : Fin 2) (q : Fin 4) (r : Fin 64) (d : Fin 256) : EReal :=
  ∑ n : Fin 16, (slab (ix5 (0 : Fin 1) n (rowCh q r) (rowG r) d) + pw (ix3 n (rowG r) d) * Mv (ix4 bl n (rowCh q r) d))
    * ct (ix4 bl n (rowCh q r) (rowG r))

/-- A sum over the leading axis of a `[16, 4, 16, 256]` array onto the zero accumulator, read at `(q, g, d)`. -/
theorem reduce_axis0_apply (src : FVec Ideal S16x4x16x256 .f32) (h : S16x4x16x256.Reduces [0] S4x16x256)
    (hφ : FKind.Formats .f32) (hacc : (0x00000000#32 : BitVec 32) = FKind.add.neutral .f32 hφ)
    (q : Fin 4) (g : Fin 16) (d : Fin 256) :
    multiReduction .add [0] S4x16x256 src 0x00000000#32 h hφ hacc (ix3 q g d) = ∑ n : Fin 16, src (ix4 n q g d) := by
  refine (Ideal.multiReduction_add_single src 0x00000000#32 h hφ hacc (ix3 q g d)).trans ?_
  refine Finset.sum_congr rfl fun n _ => congrArg src ?_
  funext a
  apply Fin.ext
  match a with
  | ⟨0, _⟩ => rfl
  | ⟨1, _⟩ => rfl
  | ⟨2, _⟩ => rfl
  | ⟨3, _⟩ => rfl

/-- The state slab's cut: chunk `o + q` of the slab. -/
theorem slabCut_apply (slab : Vec Ideal S1x16x16x16x256 .f32) (o : ℕ)
    (h1 : S1x16x16x16x256.ShapeCasts S16x16x16x256) (h2 : S16x16x16x256.Slices ![0, o, 0, 0] S16x4x16x256)
    (n : Fin 16) (q : Fin 4) (g : Fin 16) (d : Fin 256) (ch : Fin 16) (hch : ch.val = o + q.val) :
    extractStridedSlice S16x4x16x256 ![0, o, 0, 0] (shapeCast S16x16x16x256 slab h1) h2 (ix4 n q g d)
      = slab (ix5 (0 : Fin 1) n ch g d) :=
  (slice4_axis1_apply o _ h2 n q g d ch hch).trans (shapeCast_1abcd_abcd_apply slab h1 n ch g d)

/-- The decay powers laid along the chunks. -/
theorem pwCut_apply (pw : FVec Ideal S16x16x256 .f32)
    (h3 : S16x16x256.ShapeCasts S16x1x16x256) (h8 : S16x1x16x256.Broadcasts S16x4x16x256)
    (n : Fin 16) (q : Fin 4) (g : Fin 16) (d : Fin 256) :
    broadcastTo S16x4x16x256 (shapeCast S16x1x16x256 pw h3) h8 (ix4 n q g d) = pw (ix3 n g d) :=
  (broadcastTo_a1ce_abce_apply _ h8 n q g d).trans (shapeCast_abc_a1bc_apply pw h3 n 0 g d)

/-- The entering states' cut: batch row `b`, chunk `o + q`, laid along the positions. -/
theorem mvCut_apply (Mv : FVec Ideal S2x16x16x256 .f32) (b o : ℕ)
    (h4 : S2x16x16x256.Slices ![b, 0, 0, 0] S1x16x16x256) (h5 : S1x16x16x256.ShapeCasts S16x16x256)
    (h6 : S16x16x256.Slices ![0, o, 0] S16x4x256) (h7 : S16x4x256.ShapeCasts S16x4x1x256)
    (h9 : S16x4x1x256.Broadcasts S16x4x16x256)
    (n : Fin 16) (q : Fin 4) (g : Fin 16) (d : Fin 256) (bl : Fin 2) (hbl : bl.val = b) (ch : Fin 16) (hch : ch.val = o + q.val) :
    broadcastTo S16x4x16x256 (shapeCast S16x4x1x256 (extractStridedSlice S16x4x256 ![0, o, 0]
        (shapeCast S16x16x256 (extractStridedSlice S1x16x16x256 ![b, 0, 0, 0] Mv h4) h5) h6) h7) h9 (ix4 n q g d)
      = Mv (ix4 bl n ch d) :=
  (broadcastTo_ab1e_abce_apply _ h9 n q g d).trans <|
  (shapeCast_abc_ab1c_apply _ h7 n q 0 d).trans <|
  (slice3_axis1_apply o _ h6 n q d ch hch).trans <|
  (shapeCast_1abc_abc_apply _ h5 n ch d).trans <|
  slice4_axis0_apply b Mv h4 (0 : Fin 1) n ch d bl (by rw [hbl]; rfl)

/-- The output weights' cut: batch row `b`, chunk `o + q`, laid along the channels. -/
theorem ctCut_apply (ct : FVec Ideal S2x16x16x16 .f32) (b o : ℕ)
    (h10 : S2x16x16x16.Slices ![b, 0, 0, 0] S1x16x16x16) (h11 : S1x16x16x16.ShapeCasts S16x16x16)
    (h12 : S16x16x16.Slices ![0, o, 0] S16x4x16) (h13 : S16x4x16.ShapeCasts S16x4x16x1)
    (h14 : S16x4x16x1.Broadcasts S16x4x16x256)
    (n : Fin 16) (q : Fin 4) (g : Fin 16) (d : Fin 256) (bl : Fin 2) (hbl : bl.val = b) (ch : Fin 16) (hch : ch.val = o + q.val) :
    broadcastTo S16x4x16x256 (shapeCast S16x4x16x1 (extractStridedSlice S16x4x16 ![0, o, 0]
        (shapeCast S16x16x16 (extractStridedSlice S1x16x16x16 ![b, 0, 0, 0] ct h10) h11) h12) h13) h14 (ix4 n q g d)
      = ct (ix4 bl n ch g) :=
  (broadcastTo_abc1_abce_apply _ h14 n q g d).trans <|
  (shapeCast_abc_abc1_apply _ h13 n q g 0).trans <|
  (slice3_axis1_apply o _ h12 n q g ch hch).trans <|
  (shapeCast_1abc_abc_apply _ h11 n ch g).trans <|
  slice4_axis0_apply b ct h10 (0 : Fin 1) n ch g bl (by rw [hbl]; rfl)

/-- THE BLOCK: the cut of the slab plus the decay powers times the cut of the entering states, times the cut of the
    output weights, summed over the state coordinate and laid out as `[64, 256]`, is `blkForm` — for the batch row
    `b` and the chunk offset `o = 4 q` the cuts are made at. -/
theorem blk_core (ct : FVec Ideal S2x16x16x16 .f32) (pw : FVec Ideal S16x16x256 .f32) (Mv : FVec Ideal S2x16x16x256 .f32)
    (slab : Vec Ideal S1x16x16x16x256 .f32) (bl : Fin 2) (q : Fin 4) (b o : ℕ) (hb : bl.val = b) (ho : o = 4 * q.val)
    (h1 : S1x16x16x16x256.ShapeCasts S16x16x16x256) (h2 : S16x16x16x256.Slices ![0, o, 0, 0] S16x4x16x256)
    (h3 : S16x16x256.ShapeCasts S16x1x16x256) (h4 : S2x16x16x256.Slices ![b, 0, 0, 0] S1x16x16x256)
    (h5 : S1x16x16x256.ShapeCasts S16x16x256) (h6 : S16x16x256.Slices ![0, o, 0] S16x4x256)
    (h7 : S16x4x256.ShapeCasts S16x4x1x256) (h8 : S16x1x16x256.Broadcasts S16x4x16x256)
    (h9 : S16x4x1x256.Broadcasts S16x4x16x256) (h10 : S2x16x16x16.Slices ![b, 0, 0, 0] S1x16x16x16)
    (h11 : S1x16x16x16.ShapeCasts S16x16x16) (h12 : S16x16x16.Slices ![0, o, 0] S16x4x16)
    (h13 : S16x4x16.ShapeCasts S16x4x16x1) (h14 : S16x4x16x1.Broadcasts S16x4x16x256)
    (h15 : S16x4x16x256.Reduces [0] S4x16x256) (hφ : FKind.Formats .f32)
    (hacc : (0x00000000#32 : BitVec 32) = FKind.add.neutral .f32 hφ)
    (h16 : S4x16x256.ShapeCasts S64x256) (r : Fin 64) (d : Fin 256) :
    shapeCast S64x256
      (multiReduction .add [0] S4x16x256
        (mulf
          (addf (extractStridedSlice S16x4x16x256 ![0, o, 0, 0] (shapeCast S16x16x16x256 slab h1) h2)
            (mulf (broadcastTo S16x4x16x256 (shapeCast S16x1x16x256 pw h3) h8)
              (broadcastTo S16x4x16x256 (shapeCast S16x4x1x256 (extractStridedSlice S16x4x256 ![0, o, 0]
                (shapeCast S16x16x256 (extractStridedSlice S1x16x16x256 ![b, 0, 0, 0] Mv h4) h5) h6) h7) h9)))
          (broadcastTo S16x4x16x256 (shapeCast S16x4x16x1 (extractStridedSlice S16x4x16 ![0, o, 0]
            (shapeCast S16x16x16 (extractStridedSlice S1x16x16x16 ![b, 0, 0, 0] ct h10) h11) h12) h13) h14))
        0x00000000#32 h15 hφ hacc) h16 (ix2 r d)
      = blkForm ct pw Mv slab bl q r d := by
  have hch : (rowCh q r).val = o + (⟨r.val / 16, by omega⟩ : Fin 4).val := by rw [ho]
  refine (shapeCast_4x16_64_apply _ h16 r d).trans ?_
  refine (reduce_axis0_apply _ h15 hφ hacc _ _ d).trans ?_
  refine Finset.sum_congr rfl fun n _ => ?_
  exact congrArg₂ (· * ·)
    (congrArg₂ (· + ·) (slabCut_apply slab o h1 h2 n _ (rowG r) d (rowCh q r) hch)
      (congrArg₂ (· * ·) (pwCut_apply pw h3 h8 n _ (rowG r) d)
        (mvCut_apply Mv b o h4 h5 h6 h7 h9 n _ (rowG r) d bl hb (rowCh q r) hch)))
    (ctCut_apply ct b o h10 h11 h12 h13 h14 n _ (rowG r) d bl hb (rowCh q r) hch)

/-- Slot 0: batch row 0, chunks 0 to 3. -/
theorem pay22_apply (ct : FVec Ideal S2x16x16x16 .f32) (pw : FVec Ideal S16x16x256 .f32) (Mv : FVec Ideal S2x16x16x256 .f32)
    (slab : Vec Ideal S1x16x16x16x256 .f32) (r : Fin 64) (d : Fin 256) :
    Gen.k0_pay22 ct pw Mv slab (ix2 r d) = blkForm ct pw Mv slab 0 0 r d :=
  blk_core ct pw Mv slab 0 0 0 0 rfl rfl _ _ _ _ _ _ _ _ _ _ _ _ _ _ _ _ _ _ r d

/-- Slot 1: batch row 0, chunks 4 to 7. -/
theorem pay25_apply (ct : FVec Ideal S2x16x16x16 .f32) (pw : FVec Ideal S16x16x256 .f32) (Mv : FVec Ideal S2x16x16x256 .f32)
    (slab : Vec Ideal S1x16x16x16x256 .f32) (r : Fin 64) (d : Fin 256) :
    Gen.k0_pay25 ct pw Mv slab (ix2 r d) = blkForm ct pw Mv slab 0 1 r d :=
  blk_core ct pw Mv slab 0 1 0 4 rfl rfl _ _ _ _ _ _ _ _ _ _ _ _ _ _ _ _ _ _ r d

/-- Slot 2: batch row 0, chunks 8 to 11. -/
theorem pay28_apply (ct : FVec Ideal S2x16x16x16 .f32) (pw : FVec Ideal S16x16x256 .f32) (Mv : FVec Ideal S2x16x16x256 .f32)
    (slab : Vec Ideal S1x16x16x16x256 .f32) (r : Fin 64) (d : Fin 256) :
    Gen.k0_pay28 ct pw Mv slab (ix2 r d) = blkForm ct pw Mv slab 0 2 r d :=
  blk_core ct pw Mv slab 0 2 0 8 rfl rfl _ _ _ _ _ _ _ _ _ _ _ _ _ _ _ _ _ _ r d

/-- Slot 3: batch row 0, chunks 12 to 15. -/
theorem pay31_apply (ct : FVec Ideal S2x16x16x16 .f32) (pw : FVec Ideal S16x16x256 .f32) (Mv : FVec Ideal S2x16x16x256 .f32)
    (slab : Vec Ideal S1x16x16x16x256 .f32) (r : Fin 64) (d : Fin 256) :
    Gen.k0_pay31 ct pw Mv slab (ix2 r d) = blkForm ct pw Mv slab 0 3 r d :=
  blk_core ct pw Mv slab 0 3 0 12 rfl rfl _ _ _ _ _ _ _ _ _ _ _ _ _ _ _ _ _ _ r d

/-- Slot 4: batch row 1, chunks 0 to 3. -/
theorem pay34_apply (ct : FVec Ideal S2x16x16x16 .f32) (pw : FVec Ideal S16x16x256 .f32) (Mv : FVec Ideal S2x16x16x256 .f32)
    (slab : Vec Ideal S1x16x16x16x256 .f32) (r : Fin 64) (d : Fin 256) :
    Gen.k0_pay34 ct pw Mv slab (ix2 r d) = blkForm ct pw Mv slab 1 0 r d :=
  blk_core ct pw Mv slab 1 0 1 0 rfl rfl _ _ _ _ _ _ _ _ _ _ _ _ _ _ _ _ _ _ r d

/-- Slot 5: batch row 1, chunks 4 to 7. -/
theorem pay38_apply (ct : FVec Ideal S2x16x16x16 .f32) (pw : FVec Ideal S16x16x256 .f32) (Mv : FVec Ideal S2x16x16x256 .f32)
    (slab : Vec Ideal S1x16x16x16x256 .f32) (r : Fin 64) (d : Fin 256) :
    Gen.k0_pay38 ct pw Mv slab (ix2 r d) = blkForm ct pw Mv slab 1 1 r d :=
  blk_core ct pw Mv slab 1 1 1 4 rfl rfl _ _ _ _ _ _ _ _ _ _ _ _ _ _ _ _ _ _ r d

/-- Slot 6: batch row 1, chunks 8 to 11; the same arithmetic with the sum's two factors named apart. -/
theorem pay43_apply (ct : FVec Ideal S2x16x16x16 .f32) (pw : FVec Ideal S16x16x256 .f32) (Mv : FVec Ideal S2x16x16x256 .f32)
    (slab : Vec Ideal S1x16x16x16x256 .f32) (r : Fin 64) (d : Fin 256) :
    Gen.k0_pay43 (Gen.k0_pay41 pw Mv slab) (Gen.k0_pay42 ct) (ix2 r d) = blkForm ct pw Mv slab 1 2 r d := by
  unfold Gen.k0_pay43 Gen.k0_pay41 Gen.k0_pay42
  exact blk_core ct pw Mv slab 1 2 1 8 rfl rfl _ _ _ _ _ _ _ _ _ _ _ _ _ _ _ _ _ _ r d

/-- Slot 7: batch row 1, chunks 12 to 15; the same arithmetic with the three cuts named apart. -/
theorem pay49_apply (ct : FVec Ideal S2x16x16x16 .f32) (pw : FVec Ideal S16x16x256 .f32) (Mv : FVec Ideal S2x16x16x256 .f32)
    (slab : Vec Ideal S1x16x16x16x256 .f32) (r : Fin 64) (d : Fin 256) :
    Gen.k0_pay49 ct (Gen.k0_pay46 slab) (Gen.k0_pay47 pw) (Gen.k0_pay48 Mv) (ix2 r d) = blkForm ct pw Mv slab 1 3 r d := by
  unfold Gen.k0_pay49 Gen.k0_pay46 Gen.k0_pay47 Gen.k0_pay48
  exact blk_core ct pw Mv slab 1 3 1 12 rfl rfl _ _ _ _ _ _ _ _ _ _ _ _ _ _ _ _ _ _ r d

/-! ## More layout operations read at an index -/

section Layout2
variable {α : Type}

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c, e]` array broadcast to `[a, b, c, e]` reads, at `(i, j, k, l)`, the operand at `(0, j, k, l)`. -/
theorem broadcastTo_1bce_abce_apply {a b c e : ℕ} (v : (⟨4, ![1, b, c, e]⟩ : Shape).Idx → α)
    (h : (⟨4, ![1, b, c, e]⟩ : Shape).Broadcasts ⟨4, ![a, b, c, e]⟩) (i : Fin a) (j : Fin b) (k : Fin c) (l : Fin e) :
    broadcastTo ⟨4, ![a, b, c, e]⟩ v h (ix4 i j k l) = v (ix4 (0 : Fin 1) j k l) := by
  refine broadcastTo_apply v h (ix4 i j k l) (ix4 (0 : Fin 1) j k l) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if e = 1 then 0 else l.val
    split
    · have := l.isLt; omega
    · rfl

end Layout2

/-! ## The three small arrays that enter the blocks -/

/-- The output weights regrouped by chunk: `(b, n, ch, g)` reads C at batch row `b`, time `16 ch + g`, state `n`. -/
theorem pay19_apply (v137 : Vec Ideal S2x256x16 .f32) (bl : Fin 2) (n ch g : Fin 16) :
    Gen.k0_pay19 v137 (ix4 bl n ch g) = v137 (ix3 bl (⟨16 * ch.val + g.val, by omega⟩ : Fin 256) n) := by
  unfold Gen.k0_pay19
  refine (shapeCast_apply _ _ (ix4 bl n ch g) (ix3 bl n (⟨16 * ch.val + g.val, by omega⟩ : Fin 256)) ?_).trans ?_
  · rw [Shape.rowMajor_val_three, Shape.rowMajor_val_four]
    show (bl.val * 16 + n.val) * 256 + (16 * ch.val + g.val) = ((bl.val * 16 + n.val) * 16 + ch.val) * 16 + g.val
    omega
  · refine (transpose_ix3_021_apply _ _ bl n _).trans ?_
    rw [shapeCast_self]

/-- The signed reading of the word `g + 1` the position counter gives is the number `g + 1`. -/
theorem sitofp_succ (g : Fin 16) :
    FloatOps.sitofp (F := Ideal) .f32 (IntOp.addi (BitVec.ofNat 32 g.val) 1#32) = (((g.val + 1 : ℕ) : ℝ) : EReal) := by
  have h : ∀ g : Fin 16, (IntOp.addi (BitVec.ofNat 32 g.val) 1#32).toInt = ((g.val + 1 : ℕ) : ℤ) := by decide
  show (((IntOp.addi (BitVec.ofNat 32 g.val) 1#32).toInt : ℝ) : EReal) = _
  rw [h g, Int.cast_natCast]

/-- The signed reading of the word `ch` the chunk counter gives is the number `ch`. -/
theorem sitofp_coord (ch : Fin 16) :
    FloatOps.sitofp (F := Ideal) .f32 (BitVec.ofNat 32 ch.val) = (((ch.val : ℕ) : ℝ) : EReal) := by
  have h : ∀ ch : Fin 16, (BitVec.ofNat 32 ch.val).toInt = ((ch.val : ℕ) : ℤ) := by decide
  show (((BitVec.ofNat 32 ch.val).toInt : ℝ) : EReal) = _
  rw [h ch, Int.cast_natCast]

/-- The decay exponents laid along the positions of a chunk. -/
theorem decayRow_apply (v22 : FVec Ideal S16x256 .f32) (h1 : S16x256.ShapeCasts S16x1x256)
    (h2 : S16x1x256.Broadcasts S16x16x256) (n g : Fin 16) (d : Fin 256) :
    broadcastTo S16x16x256 (shapeCast S16x1x256 v22 h1) h2 (ix3 n g d) = v22 (ix2 n d) :=
  (broadcastTo_a1c_abc_apply _ h2 n g d).trans (shapeCast_ac_a1c_apply v22 h1 n 0 d)

/-- The decay powers: at `(n, g, d)` the exponential of the decay exponent times `g + 1`. -/
theorem pay20_apply (v22 : FVec Ideal S16x256 .f32) (n g : Fin 16) (d : Fin 256) :
    Gen.k0_pay20 v22 (ix3 n g d) = Ideal.exp (v22 (ix2 n d) * (((g.val + 1 : ℕ) : ℝ) : EReal)) := by
  unfold Gen.k0_pay20
  show Ideal.exp (broadcastTo S16x16x256 (shapeCast S16x1x256 v22 _) _ (ix3 n g d)
    * FloatOps.sitofp (F := Ideal) .f32 (IntOp.addi (iota .tc S16x16x256 32 [1] _ (ix3 n g d)) 1#32)) = _
  rw [decayRow_apply, iota_single_apply]
  exact congrArg (fun x => Ideal.exp (v22 (ix2 n d) * x)) (sitofp_succ g)

/-- The decay over `ch` whole chunks of 16 steps at state `n` and channel `d`. -/
def chDecay (v22 : S16x256.Idx → EReal) (n ch : Fin 16) (d : Fin 256) : EReal :=
  Ideal.exp (v22 (ix2 n d) * (((ch.val : ℕ) : ℝ) : EReal) * Ideal.ofBits .f32 0x41800000#32)

/-- The entering state carried to the start of chunk `ch`: the decay over `ch` chunks times the entering state. -/
theorem enter_apply (v22 : FVec Ideal S16x256 .f32) (hin : Vec Ideal S2x16x256 .f32)
    (h1 : S16x256.ShapeCasts S16x1x256) (h2 : S16x1x256.Broadcasts S16x16x256) (h3 : S16x16x256.Iotas .tc 32 [1])
    (h4 : S16x16x256.ShapeCasts S1x16x16x256) (h5 : S2x16x256.ShapeCasts S2x16x1x256)
    (h6 : S1x16x16x256.Broadcasts S2x16x16x256) (h7 : S2x16x1x256.Broadcasts S2x16x16x256)
    (bl : Fin 2) (n ch : Fin 16) (d : Fin 256) :
    mulf (broadcastTo S2x16x16x256 (shapeCast S1x16x16x256
            (exp (mulf (mulf (broadcastTo S16x16x256 (shapeCast S16x1x256 v22 h1) h2)
                    (sitofp .f32 (iota .tc S16x16x256 32 [1] h3)))
              (broadcast S16x16x256 (Scalar.ofBits (F := Ideal) .f32 0x41800000#32)))) h4) h6)
        (broadcastTo S2x16x16x256 (shapeCast S2x16x1x256 hin h5) h7) (ix4 bl n ch d)
      = chDecay v22 n ch d * hin (ix3 bl n d) := by
  refine congrArg₂ (· * ·) ?_
    ((broadcastTo_ab1e_abce_apply _ h7 bl n ch d).trans (shapeCast_abc_ab1c_apply hin h5 bl n 0 d))
  refine ((broadcastTo_1bce_abce_apply _ h6 bl n ch d).trans (shapeCast_abc_1abc_apply _ h4 0 n ch d)).trans ?_
  show Ideal.exp (broadcastTo S16x16x256 (shapeCast S16x1x256 v22 h1) h2 (ix3 n ch d)
    * FloatOps.sitofp (F := Ideal) .f32 (iota .tc S16x16x256 32 [1] h3 (ix3 n ch d))
    * Ideal.ofBits .f32 0x41800000#32) = _
  rw [decayRow_apply, iota_single_apply]
  exact congrArg (fun x => Ideal.exp (v22 (ix2 n d) * x * Ideal.ofBits .f32 0x41800000#32)) (sitofp_coord ch)

/-- The state entering each chunk: at chunk 0 the decayed entering state, at a later chunk that plus the local state
    at the end of the chunk before. -/
theorem pay21_apply (v22 : FVec Ideal S16x256 .f32) (v121 : FVec Ideal S2x16x16x256 .f32)
    (v125 v126 : FVec Ideal S2x16x8x256 .f32) (v127 : FVec Ideal S1x16x1x256 .f32) (hin : Vec Ideal S2x16x256 .f32)
    (bl : Fin 2) (n ch : Fin 16) (d : Fin 256) :
    Gen.k0_pay21 v22 v121 v125 v126 v127 hin (ix4 bl n ch d)
      = if ch.val = 0 then chDecay v22 n ch d * hin (ix3 bl n d)
        else chDecay v22 n ch d * hin (ix3 bl n d)
          + Gen.k0_pay16 v121 v125 v126 v127 (ix4 bl n (⟨ch.val - 1, by omega⟩ : Fin 16) d) := by
  unfold Gen.k0_pay21
  by_cases hc : ch.val = 0
  · rw [if_pos hc]
    refine (concatenate_pair_apply_left (t := S2x16x16x256) (s₁ := S2x16x1x256) (s₂ := S2x16x15x256) _ _ _ _ (ix4 bl n ch d) rfl
      (ix4 bl n (0 : Fin 1) d) (fun b => ?_)).trans ?_
    · match b with
      | ⟨0, _⟩ => rfl
      | ⟨1, _⟩ => rfl
      | ⟨2, _⟩ => exact hc.symm
      | ⟨3, _⟩ => rfl
    · refine (slice4_axis2_apply 0 _ _ bl n (0 : Fin 1) d ch (by rw [hc]; rfl)).trans ?_
      exact enter_apply v22 hin _ _ _ _ _ _ _ bl n ch d
  · rw [if_neg hc]
    refine (concatenate_pair_apply_right (t := S2x16x16x256) (s₁ := S2x16x1x256) (s₂ := S2x16x15x256) _ _ _ _ (ix4 bl n ch d) rfl rfl
      (ix4 bl n (⟨ch.val - 1, by omega⟩ : Fin 15) d) (fun b hb => ?_) ?_).trans ?_
    · match b, hb with
      | ⟨0, _⟩, _ => rfl
      | ⟨1, _⟩, _ => rfl
      | ⟨2, _⟩, hb => exact absurd (Fin.ext rfl) hb
      | ⟨3, _⟩, _ => rfl
    · show ch.val - 1 + 1 = ch.val
      omega
    · refine congrArg₂ (· + ·) ?_ ?_
      · refine (slice4_axis2_apply 1 _ _ bl n (⟨ch.val - 1, by omega⟩ : Fin 15) d ch
          (by show ch.val = 1 + (ch.val - 1); omega)).trans ?_
        exact enter_apply v22 hin _ _ _ _ _ _ _ bl n ch d
      · exact slice4_axis2_apply 0 _ _ bl n (⟨ch.val - 1, by omega⟩ : Fin 15) d (⟨ch.val - 1, by omega⟩ : Fin 16)
          (by show ch.val - 1 = 0 + (ch.val - 1); omega)

/-! ## The eight blocks of a device -/

/-- The block of slot `s = 4 b + q` in single precision at row `r` and channel `d`. -/
theorem yblk_apply (m : (ℓ : Loc nD τ sig) → Buf (Elt Ideal) ℓ) (c : Dev nD) (s : Fin 8) (r : Fin 64) (d : Fin 256) :
    KVal.yblk m c s (ix3 (0 : Fin 1) r d)
      = blkForm (KVal.v140 m c) (KVal.v148 m c) (KVal.v170 m c) (if s.val < 4 then KVal.slab0 m c else KVal.slab1 m c)
          (⟨s.val / 4, by omega⟩ : Fin 2) (⟨s.val % 4, by omega⟩ : Fin 4) r d := by
  fin_cases s
  · exact (shapeCast_ab_1ab_apply _ _ 0 r d).trans (pay22_apply _ _ _ _ r d)
  · exact (shapeCast_ab_1ab_apply _ _ 0 r d).trans (pay25_apply _ _ _ _ r d)
  · exact (shapeCast_ab_1ab_apply _ _ 0 r d).trans (pay28_apply _ _ _ _ r d)
  · exact (shapeCast_ab_1ab_apply _ _ 0 r d).trans (pay31_apply _ _ _ _ r d)
  · exact (shapeCast_ab_1ab_apply _ _ 0 r d).trans (pay34_apply _ _ _ _ r d)
  · exact (shapeCast_ab_1ab_apply _ _ 0 r d).trans (pay38_apply _ _ _ _ r d)
  · exact (shapeCast_ab_1ab_apply _ _ 0 r d).trans (pay43_apply _ _ _ _ r d)
  · exact (shapeCast_ab_1ab_apply _ _ 0 r d).trans (pay49_apply _ _ _ _ r d)

/-- The half-precision block holds the same extended reals: narrowing is the identity at the ideal values. -/
theorem yblk16_apply (m : (ℓ : Loc nD τ sig) → Buf (Elt Ideal) ℓ) (c : Dev nD) (s : Fin 8) (i : S1x64x256.Idx) :
    (KVal.yblk16 m c s i : EReal) = KVal.yblk m c s i := by
  fin_cases s <;> rfl

end Cert.KernelIdeal.KSlots

end
-- ==== Proof.KPieces.lean ====
/-
  The kernel's loads and piecewise-filled buffers read at an index, at the ideal values: what a device loads of its
  arguments, the state buffer after its first whole store, the entering state as loaded, the two batch rows of the
  state buffer, and the two buffers filled by eight and nine block stores.
-/
import proofs.«900482_g7700000000000483_dist_ssm_v7x_xy2x2_y_b4_s256_d256_n16_f32_1_alg».proof.Proof.KVal
import proofs.«900482_g7700000000000483_dist_ssm_v7x_xy2x2_y_b4_s256_d256_n16_f32_1_alg».proof.Proof.KSlots
import Idealize.ShloMosaic.Lib.ValueIdx
import Idealize.ShloMosaic.Lib.Pipeline.Value
import Idealize.ShloMosaic.Lib.ValueLayout

noncomputable section

namespace Cert.KernelIdeal.KPieces

open Idealize.ShloMosaic Idealize.SL.Sem Cert.KernelIdeal Idealize.ShloMosaic.ValueIdx Cert.KernelIdeal.KSlots
open scoped BigOperators

/-! ## Indices of unit-stride boxes, by coordinates -/

/-- The index a load of rows `o0 ..` of a rank-3 array reads its entry `(b, t, d)` at: row `o0 + b`. -/
theorem idx_rows3 {n0 n1 n2 m0 : ℕ} (off : Fin 3 → ℕ) (o0 : ℕ) (hoff : off = ![o0, 0, 0])
    (inb : ∀ a, off a + (⟨3, ![m0, n1, n2]⟩ : Shape).size a ≤ (⟨3, ![n0, n1, n2]⟩ : Shape).size a)
    (b : Fin m0) (t : Fin n1) (d : Fin n2) (k : Fin n0) (hk : k.val = o0 + b.val) :
    (Rect.unit (s := ⟨3, ![n0, n1, n2]⟩) off (⟨3, ![m0, n1, n2]⟩ : Shape).size inb).toLoadRect.idx (ix3 b t d)
      = ix3 k t d := by
  subst hoff
  funext a; apply Fin.ext
  match a with
  | ⟨0, _⟩ => show o0 + 1 * b.val = k.val; omega
  | ⟨1, _⟩ => show 0 + 1 * t.val = t.val; omega
  | ⟨2, _⟩ => show 0 + 1 * d.val = d.val; omega

/-- The index a load of batch row `o0` of the state buffer reads its entry `(0, n, ch, g, d)` at. -/
theorem idx_slab (o0 : ℕ)
    (inb : ∀ a, (![o0, 0, 0, 0, 0] : Fin 5 → ℕ) a + S1x16x16x16x256.size a ≤ S2x16x16x16x256.size a)
    (n ch g : Fin 16) (d : Fin 256) (k : Fin 2) (hk : k.val = o0) :
    (Rect.unit (s := S2x16x16x16x256) ![o0, 0, 0, 0, 0] S1x16x16x16x256.size inb).toLoadRect.idx
        (ix5 (0 : Fin 1) n ch g d) = ix5 k n ch g d := by
  funext a; apply Fin.ext
  match a with
  | ⟨0, _⟩ => show o0 + 1 * 0 = k.val; omega
  | ⟨1, _⟩ => show 0 + 1 * n.val = n.val; omega
  | ⟨2, _⟩ => show 0 + 1 * ch.val = ch.val; omega
  | ⟨3, _⟩ => show 0 + 1 * g.val = g.val; omega
  | ⟨4, _⟩ => show 0 + 1 * d.val = d.val; omega

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl
theorem zero5 : (![0, 0, 0, 0, 0] : Fin 5 → ℕ) = fun _ => 0 := by
  funext a; match a with | ⟨0, _⟩ => rfl | ⟨1, _⟩ => rfl | ⟨2, _⟩ => rfl | ⟨3, _⟩ => rfl | ⟨4, _⟩ => rfl

variable (m : (ℓ : Loc nD τ sig) → Buf (Elt Ideal) ℓ) (c : Dev nD)

/-! ## The loads of the arguments -/

/-- The transposed decay exponents: entry `(n, d)` is A at `(d, n)`. -/
theorem v22_apply (n : Fin 16) (d : Fin 256) : KVal.v22 m c (ix2 n d) = KVal.argA m c (ix2 d n) := by
  unfold KVal.v22 Gen.k0_pay2
  refine (transpose_ix2_apply _ _ n d).trans ?_
  rw [shapeCast_self]
  exact congrFun (Memref.readAt_unit_zero (Elt Ideal) cc0_stg1_0 zero2 _ (KVal.argA m c)) (ix2 d n)

/-- The device's own rows of x: row `bl` is row `2 (c / 2) + bl` of its block. -/
theorem v24_apply (bl : Fin 2) (t d : Fin 256) :
    KVal.v24 m c (ix3 bl t d)
      = KVal.argX m c (ix3 (⟨2 * (c.val / 2) + bl.val, by have h : c.val < 4 := c.isLt; omega⟩ : Fin 4) t d) :=
  congrArg (KVal.argX m c) (idx_rows3 (k0_off1 c) _ (Gen.k0_off1_eq c) (Gen.k0_off1_inb c) bl t d _ rfl)

/-- The device's own rows of B. -/
theorem v27_apply (bl : Fin 2) (t : Fin 256) (n : Fin 16) :
    KVal.v27 m c (ix3 bl t n)
      = KVal.argB m c (ix3 (⟨2 * (c.val / 2) + bl.val, by have h : c.val < 4 := c.isLt; omega⟩ : Fin 4) t n) :=
  congrArg (KVal.argB m c) (idx_rows3 (k0_off2 c) _ (Gen.k0_off2_eq c) (Gen.k0_off2_inb c) bl t n _ rfl)

/-- The device's own rows of C. -/
theorem v137_apply (bl : Fin 2) (t : Fin 256) (n : Fin 16) :
    KVal.v137 m c (ix3 bl t n)
      = KVal.argC m c (ix3 (⟨2 * (c.val / 2) + bl.val, by have h : c.val < 4 := c.isLt; omega⟩ : Fin 4) t n) :=
  congrArg (KVal.argC m c) (idx_rows3 (k0_off2 c) _ (Gen.k0_off2_eq c) (Gen.k0_off2_inb c) bl t n _ rfl)

/-! ## The state buffer after the whole store -/

section Layout
variable {α : Type}

/-- An `[a, b, 256, e]` array cast to `[a, b, 16, 16, e]` reads, at `(i, j, ch, g, l)`, the operand at
    `(i, j, 16 ch + g, l)`. -/
theorem shapeCast_split256_apply {a b e : ℕ} (x : (⟨4, ![a, b, 256, e]⟩ : Shape).Idx → α)
    (h : (⟨4, ![a, b, 256, e]⟩ : Shape).ShapeCasts ⟨5, ![a, b, 16, 16, e]⟩)
    (i : Fin a) (j : Fin b) (ch g : Fin 16) (l : Fin e) :
    shapeCast ⟨5, ![a, b, 16, 16, e]⟩ x h (ix5 i j ch g l)
      = x (ix4 i j (⟨16 * ch.val + g.val, by omega⟩ : Fin 256) l) :=
  shapeCast_apply x h _ _ (by
    rw [Shape.rowMajor_val_four, Shape.rowMajor_val_five]
    show ((i.val * b + j.val) * 256 + (16 * ch.val + g.val)) * e + l.val
      = (((i.val * b + j.val) * 16 + ch.val) * 16 + g.val) * e + l.val
    have h : (i.val * b + j.val) * 256 + (16 * ch.val + g.val) = ((i.val * b + j.val) * 16 + ch.val) * 16 + g.val := by
      omega
    rw [h])

end Layout

/-- After the whole store the state buffer holds, at `(b, n, ch, g, d)`, x · B at time `16 ch + g`. -/
theorem H0_apply (bl : Fin 2) (n ch g : Fin 16) (d : Fin 256) :
    View.canon (KVal.hL0 m c) (ix5 bl n ch g d)
      = KVal.v24 m c (ix3 bl (⟨16 * ch.val + g.val, by omega⟩ : Fin 256) d)
        * KVal.v27 m c (ix3 bl (⟨16 * ch.val + g.val, by omega⟩ : Fin 256) n) := by
  unfold KVal.hL0
  rw [View.canon_unit_zero zero5]
  unfold Gen.k0_pay5 Gen.k0_pay4 Gen.k0_pay3
  rw [shapeCast_self]
  refine (shapeCast_split256_apply _ _ bl n ch g d).trans ?_
  refine congrArg₂ (· * ·) ?_ ?_
  · refine (broadcastTo_a1ce_abce_apply _ _ bl n _ d).trans ?_
    refine (shapeCast_abc_a1bc_apply _ _ bl 0 _ d).trans ?_
    rw [shapeCast_self]
  · refine (broadcastTo_abc1_abce_apply _ _ bl n _ d).trans ?_
    refine (shapeCast_abc_abc1_apply _ _ bl n _ 0).trans ?_
    refine (transpose_ix3_021_apply _ _ bl n _).trans ?_
    rw [shapeCast_self]

/-! ## The entering state as loaded, and the two batch rows of the state buffer -/

/-- The entering state as the body loads it: zero on a device with my = 0, the y-peer's final local state on my = 1. -/
theorem v160_apply (bl : Fin 2) (n : Fin 16) (d : Fin 256) :
    KVal.v160 m c (ix3 bl n d)
      = if c.val % 2 = 0 then Ideal.ofBits .f32 0x00000000#32 else KVal.hsendV m (KVal.ypeer c) (ix3 bl n d) := by
  unfold KVal.v160
  split
  · refine (congrFun (View.readCov_unit_zero (S := S2x16x256) _ zero3 _ _) (ix3 bl n d)).trans ?_
    unfold Gen.k0_pay18
    rw [shapeCast_self]
    rfl
  · exact congrFun (Memref.readAt_unit_zero (Elt Ideal) cc0_scratch2 zero3 _ (KVal.hsendV m (KVal.ypeer c))) (ix3 bl n d)

/-- Batch row 0 of the state buffer after the four doubling steps. -/
theorem slab0_apply (n ch g : Fin 16) (d : Fin 256) :
    KVal.slab0 m c (ix5 (0 : Fin 1) n ch g d) = View.canon (KVal.hL4 m c) (ix5 (0 : Fin 2) n ch g d) := by
  unfold KVal.slab0
  rw [KVal.hld_eq]
  exact congrArg (View.canon (KVal.hL4 m c)) (idx_slab 0 _ n ch g d 0 rfl)

/-- Batch row 1 of the state buffer after the four doubling steps. -/
theorem slab1_apply (n ch g : Fin 16) (d : Fin 256) :
    KVal.slab1 m c (ix5 (0 : Fin 1) n ch g d) = View.canon (KVal.hL4 m c) (ix5 (1 : Fin 2) n ch g d) := by
  unfold KVal.slab1
  rw [KVal.hld_eq]
  exact congrArg (View.canon (KVal.hL4 m c)) (idx_slab 1 _ n ch g d 1 rfl)

/-! ## Buffers filled block by block -/

/-- A store of one `[1, 64, 256]` block at batch row `b0`, rows `64 q0 ..`, over earlier stores, read at one entry:
    the block where the entry lies in it, the earlier stores elsewhere. -/
theorem canon_cons_slot {n0 : ℕ} {e : EltTy} (off : Fin 3 → ℕ) (b0 o1 q0 : ℕ) (hoff : off = ![b0, o1, 0]) (ho : o1 = 64 * q0)
    (inb : ∀ a, off a + S1x64x256.size a ≤ (⟨3, ![n0, 256, 256]⟩ : Shape).size a)
    (w : S1x64x256.Idx → Elt Ideal e) (L : List (View.Piece (Elt Ideal) ⟨3, ![n0, 256, 256]⟩ e))
    (bl : Fin n0) (t d : Fin 256) :
    View.canon (⟨Rect.unit (s := ⟨3, ![n0, 256, 256]⟩) off S1x64x256.size inb, w⟩ :: L) (ix3 bl t d)
      = if bl.val = b0 ∧ t.val / 64 = q0 then w (ix3 (0 : Fin 1) (⟨t.val % 64, Nat.mod_lt _ (by decide)⟩ : Fin 64) d)
        else View.canon L (ix3 bl t d) := by
  subst hoff ho
  split
  · rename_i h
    have e : (ix3 bl t d : (⟨3, ![n0, 256, 256]⟩ : Shape).Idx)
        = (Rect.unit (s := ⟨3, ![n0, 256, 256]⟩) ![b0, 64 * q0, 0] S1x64x256.size inb).emb
            (ix3 (0 : Fin 1) (⟨t.val % 64, Nat.mod_lt _ (by decide)⟩ : Fin 64) d) := by
      funext a; apply Fin.ext; rw [Rect.emb_apply]
      match a with
      | ⟨0, _⟩ => show bl.val = b0 + 1 * 0; omega
      | ⟨1, _⟩ => show t.val = 64 * q0 + 1 * (t.val % 64); omega
      | ⟨2, _⟩ => show d.val = 0 + 1 * d.val; omega
    rw [e, View.canon_cons_emb]
  · rename_i h
    refine View.canon_cons_of_not_mem _ _ ?_
    intro hm
    have h0 := (Rect.mem_set_unit (inb := inb)).mp hm ⟨0, by show 0 < 3; omega⟩
    have h1 := (Rect.mem_set_unit (inb := inb)).mp hm ⟨1, by show 1 < 3; omega⟩
    have h0a : b0 ≤ bl.val := h0.1
    have h0b : bl.val < b0 + 1 := h0.2
    have h1a : 64 * q0 ≤ t.val := h1.1
    have h1b : t.val < 64 * q0 + 64 := h1.2
    exact h ⟨by omega, by omega⟩

/-- A store of two whole batch rows `b0, b0 + 1` over earlier stores, read at one entry. -/
theorem canon_cons_rows {n0 : ℕ} {e : EltTy} (off : Fin 3 → ℕ) (b0 : ℕ) (hoff : off = ![b0, 0, 0])
    (inb : ∀ a, off a + S2x256x256.size a ≤ (⟨3, ![n0, 256, 256]⟩ : Shape).size a)
    (w : S2x256x256.Idx → Elt Ideal e) (L : List (View.Piece (Elt Ideal) ⟨3, ![n0, 256, 256]⟩ e))
    (bl : Fin n0) (t d : Fin 256) :
    View.canon (⟨Rect.unit (s := ⟨3, ![n0, 256, 256]⟩) off S2x256x256.size inb, w⟩ :: L) (ix3 bl t d)
      = if h : b0 ≤ bl.val ∧ bl.val < b0 + 2 then w (ix3 (⟨bl.val - b0, by omega⟩ : Fin 2) t d)
        else View.canon L (ix3 bl t d) := by
  subst hoff
  split
  · rename_i h
    have e : (ix3 bl t d : (⟨3, ![n0, 256, 256]⟩ : Shape).Idx)
        = (Rect.unit (s := ⟨3, ![n0, 256, 256]⟩) ![b0, 0, 0] S2x256x256.size inb).emb
            (ix3 (⟨bl.val - b0, by omega⟩ : Fin 2) t d) := by
      funext a; apply Fin.ext; rw [Rect.emb_apply]
      match a with
      | ⟨0, _⟩ => show bl.val = b0 + 1 * (bl.val - b0); omega
      | ⟨1, _⟩ => show t.val = 0 + 1 * t.val; omega
      | ⟨2, _⟩ => show d.val = 0 + 1 * d.val; omega
    rw [e, View.canon_cons_emb]
  · rename_i h
    refine View.canon_cons_of_not_mem _ _ ?_
    intro hm
    have h0 := (Rect.mem_set_unit (inb := inb)).mp hm ⟨0, by show 0 < 3; omega⟩
    have h0a : b0 ≤ bl.val := h0.1
    have h0b : bl.val < b0 + 2 := h0.2
    exact h ⟨h0a, h0b⟩

/-- Eight alternatives told apart by a batch row `base` or `base + 1` and a quarter `q`: the one numbered
    `4 (b - base) + q`. -/
theorem pick8 {β : Type} (f : Fin 8 → β) (z : β) (b base q : ℕ) (hb : base ≤ b) (hb2 : b < base + 2) (hq : q < 4) :
    (if b = base + 1 ∧ q = 3 then f 7 else if b = base + 1 ∧ q = 2 then f 6 else if b = base + 1 ∧ q = 1 then f 5
      else if b = base + 1 ∧ q = 0 then f 4 else if b = base + 0 ∧ q = 3 then f 3 else if b = base + 0 ∧ q = 2 then f 2
      else if b = base + 0 ∧ q = 1 then f 1 else if b = base + 0 ∧ q = 0 then f 0 else z)
      = f ⟨4 * (b - base) + q, by omega⟩ := by
  obtain ⟨b', rfl⟩ : ∃ b', b = base + b' := ⟨b - base, by omega⟩
  have hb' : b' < 2 := by omega
  interval_cases b' <;> interval_cases q <;> simp

/-- The half-precision send buffer after its eight stores: batch row `bl`, row `t` lies in the block of slot
    `4 bl + t / 64`, at its row `t % 64`. -/
theorem obufV_apply (bl : Fin 2) (t d : Fin 256) :
    KVal.obufV m c (ix3 bl t d)
      = KVal.yblk16 m c (⟨4 * bl.val + t.val / 64, by omega⟩ : Fin 8)
          (ix3 (0 : Fin 1) (⟨t.val % 64, Nat.mod_lt _ (by decide)⟩ : Fin 64) d) := by
  unfold KVal.obufV KVal.obufL
  rw [canon_cons_slot _ 1 192 3 rfl rfl, canon_cons_slot _ 1 128 2 rfl rfl, canon_cons_slot _ 1 64 1 rfl rfl,
    canon_cons_slot _ 1 0 0 rfl rfl, canon_cons_slot _ 0 192 3 rfl rfl, canon_cons_slot _ 0 128 2 rfl rfl,
    canon_cons_slot _ 0 64 1 rfl rfl, canon_cons_slot _ 0 0 0 rfl rfl]
  exact pick8 (fun s => KVal.yblk16 m c s (ix3 (0 : Fin 1) (⟨t.val % 64, Nat.mod_lt _ (by decide)⟩ : Fin 64) d)) _
    bl.val 0 (t.val / 64) (Nat.zero_le _) (by omega) (by omega)

/-- The output staging buffer when the body ends: the device's own two batch rows hold its eight blocks, the other
    two what it received from its x-peer. -/
theorem outV_apply (b : Fin 4) (t d : Fin 256) :
    KVal.outV m c (ix3 b t d)
      = if b.val / 2 = c.val / 2 then
          KVal.yblk m c (⟨4 * (b.val % 2) + t.val / 64, by omega⟩ : Fin 8)
            (ix3 (0 : Fin 1) (⟨t.val % 64, Nat.mod_lt _ (by decide)⟩ : Fin 64) d)
        else KVal.obufV m (KVal.xpeer c) (ix3 (⟨b.val % 2, Nat.mod_lt _ (by decide)⟩ : Fin 2) t d) := by
  have hc : c.val < 4 := c.isLt
  unfold KVal.outV KVal.outL
  rw [canon_cons_rows (k0_off7 c) (2 - 2 * (c.val / 2)) (Gen.k0_off7_eq c),
    canon_cons_slot (k0_off6 c 1#32) (2 * (c.val / 2) + 1) 192 3 (Gen.k0_off6_eq c 1) rfl,
    canon_cons_slot (k0_off5 c 1#32) (2 * (c.val / 2) + 1) 128 2 (Gen.k0_off5_eq c 1) rfl,
    canon_cons_slot (k0_off4 c 1#32) (2 * (c.val / 2) + 1) 64 1 (Gen.k0_off4_eq c 1) rfl,
    canon_cons_slot (k0_off3 c 1#32) (2 * (c.val / 2) + 1) 0 0 (Gen.k0_off3_eq c 1) rfl,
    canon_cons_slot (k0_off6 c 0#32) (2 * (c.val / 2) + 0) 192 3 (Gen.k0_off6_eq c 0) rfl,
    canon_cons_slot (k0_off5 c 0#32) (2 * (c.val / 2) + 0) 128 2 (Gen.k0_off5_eq c 0) rfl,
    canon_cons_slot (k0_off4 c 0#32) (2 * (c.val / 2) + 0) 64 1 (Gen.k0_off4_eq c 0) rfl,
    canon_cons_slot (k0_off3 c 0#32) (2 * (c.val / 2) + 0) 0 0 (Gen.k0_off3_eq c 0) rfl]
  by_cases hbc : b.val / 2 = c.val / 2
  · have h1 : ¬(2 - 2 * (c.val / 2) ≤ b.val ∧ b.val < 2 - 2 * (c.val / 2) + 2) := by omega
    rw [if_pos hbc, dif_neg h1]
    refine (pick8 (fun s => KVal.yblk m c s (ix3 (0 : Fin 1) (⟨t.val % 64, Nat.mod_lt _ (by decide)⟩ : Fin 64) d)) _
      b.val (2 * (c.val / 2)) (t.val / 64) (by omega) (by omega) (by omega)).trans ?_
    exact congrArg (fun s => KVal.yblk m c s (ix3 (0 : Fin 1) (⟨t.val % 64, Nat.mod_lt _ (by decide)⟩ : Fin 64) d))
      (Fin.ext (by show 4 * (b.val - 2 * (c.val / 2)) + t.val / 64 = 4 * (b.val % 2) + t.val / 64; omega))
  · have h1 : 2 - 2 * (c.val / 2) ≤ b.val ∧ b.val < 2 - 2 * (c.val / 2) + 2 := by omega
    rw [if_neg hbc, dif_pos h1]
    unfold Gen.k0_pay1
    refine (extf_apply (φ := .bf16) (ψ := .f32) (KVal.obufV m (KVal.xpeer c)) _ _).trans ?_
    exact congrArg (fun k => KVal.obufV m (KVal.xpeer c) (ix3 k t d))
      (Fin.ext (by show b.val - (2 - 2 * (c.val / 2)) = b.val % 2; omega))

end Cert.KernelIdeal.KPieces

end
-- ==== Proof.Spec.lean ====
/-
  The mathematics both programs compute, stated once. A state h per (batch row b, channel d, state index n)
  follows the linear recurrence  h(t) = h(t-1) * a + u(t),  h(-1) = 0,  with decay a = exp A[d, n] and input
  u(t) = x[b, t, d] * B[b, t, n]; the result at (b, t, d) is the sum over the 16 state indices of
  h(t) * C[b, t, n]. Everything is on the extended reals, with the operations' own conventions.
-/
import Idealize.ShloMosaic.PureOps.Ideal
import Idealize.ShloMosaic.Lib.ValueIdx

noncomputable section

namespace Cert.Spec

open Idealize.ShloMosaic Idealize.ShloMosaic.ValueIdx

/-- The recurrence from an entering state h0: h 0 = h0 * a + u 0, h (t+1) = h t * a + u (t+1). -/
def erecFrom (a h0 : EReal) (u : ℕ → EReal) : ℕ → EReal
  | 0 => h0 * a + u 0
  | t + 1 => erecFrom a h0 u t * a + u (t + 1)

/-- The recurrence from the zero state. -/
def erec (a : EReal) (u : ℕ → EReal) : ℕ → EReal := erecFrom a 0 u

theorem erecFrom_zero (a h0 : EReal) (u : ℕ → EReal) : erecFrom a h0 u 0 = h0 * a + u 0 := rfl
theorem erecFrom_succ (a h0 : EReal) (u : ℕ → EReal) (t : ℕ) :
    erecFrom a h0 u (t + 1) = erecFrom a h0 u t * a + u (t + 1) := rfl

/-- Running on from time s + 1 with the state reached at time s is the same run. -/
theorem erecFrom_shift (a h0 : EReal) (u : ℕ → EReal) (s t : ℕ) :
    erecFrom a h0 u (s + 1 + t) = erecFrom a (erecFrom a h0 u s) (fun r => u (s + 1 + r)) t := by
  induction t with
  | zero => rfl
  | succ t ih => rw [show s + 1 + (t + 1) = (s + 1 + t) + 1 from rfl, erecFrom_succ, ih, erecFrom_succ]; rfl

/-- Entry (b, s, j) of an array of shape [4, T, k] at a natural-number time s; zero past the end (never read there). -/
def at3 {T k : ℕ} (X : (⟨3, ![4, T, k]⟩ : Shape).Idx → EReal) (b : Fin 4) (s : ℕ) (j : Fin k) : EReal :=
  if h : s < T then X (ix3 b ⟨s, h⟩ j) else 0

/-- The result at (b, t, d) over the whole sequence of 512 steps. -/
def yref (X : (⟨3, ![4, 512, 256]⟩ : Shape).Idx → EReal) (A : (⟨2, ![256, 16]⟩ : Shape).Idx → EReal)
    (B C : (⟨3, ![4, 512, 16]⟩ : Shape).Idx → EReal) (b : Fin 4) (t : Fin 512) (d : Fin 256) : EReal :=
  ∑ n : Fin 16, erec (Ideal.exp (A (ix2 d n))) (fun s => at3 X b s d * at3 B b s n) t.val * C (ix3 b t n)

end Cert.Spec

end
-- ==== Proof.LibScan.lean ====
/-
  Linear recurrences  h(t) = h(t-1) * a + u(t)  over the reals: the closed form of the sequential run, and its
  evaluation by chunks of sixteen steps, with a doubling scan inside each chunk and a second doubling scan over
  the chunks' last entries that supplies the state entering each chunk.
-/
import Mathlib.Data.Real.Basic
import Mathlib.Algebra.BigOperators.Intervals
import Mathlib.Algebra.BigOperators.Ring.Finset
import Mathlib.Tactic.Ring

noncomputable section

namespace Cert.Lib.Scan

/-- The sequential recurrence from an entering state h0: h 0 = h0 * a + u 0 and h (t+1) = h t * a + u (t+1). -/
def recFrom (a h0 : ℝ) (u : ℕ → ℝ) : ℕ → ℝ
  | 0 => h0 * a + u 0
  | t + 1 => recFrom a h0 u t * a + u (t + 1)

/-- One doubling step of offset off: entry i gains r times the entry off places before it, when there is one. -/
def dstep (r : ℝ) (off : ℕ) (w : ℕ → ℝ) : ℕ → ℝ :=
  fun i => if off ≤ i then w i + r * w (i - off) else w i

/-- Four doubling steps, of offsets 1, 2, 4 and 8 with factors r1, r2, r4 and r8. -/
def scan16 (r1 r2 r4 r8 : ℝ) (v : ℕ → ℝ) : ℕ → ℝ :=
  dstep r8 8 (dstep r4 4 (dstep r2 2 (dstep r1 1 v)))

/-- The scan inside chunk c: the doubling scan with factors a, a², a⁴, a⁸ of the sixteen inputs u (16 c + j). -/
def S (a : ℝ) (u : ℕ → ℝ) (c : ℕ) : ℕ → ℝ :=
  scan16 (a ^ 1) (a ^ 2) (a ^ 4) (a ^ 8) (fun j => u (16 * c + j))

/-- The scan over the chunks' last entries S c 15, with the sixteen-step decay a¹⁶ in place of a. -/
def P (a : ℝ) (u : ℕ → ℝ) : ℕ → ℝ :=
  scan16 ((a ^ 16) ^ 1) ((a ^ 16) ^ 2) ((a ^ 16) ^ 4) ((a ^ 16) ^ 8) (fun c => S a u c 15)

/-- Closed form of the recurrence: h t = a^(t+1) h0 + Σ_{s ≤ t} a^(t-s) u s. -/
theorem recFrom_closed (a h0 : ℝ) (u : ℕ → ℝ) (t : ℕ) :
    recFrom a h0 u t = a ^ (t + 1) * h0 + ∑ s ∈ Finset.range (t + 1), a ^ (t - s) * u s := by
  induction t with
  | zero => simp [recFrom]; ring
  | succ t ih =>
    have h : ∀ s ∈ Finset.range (t + 1), a ^ (t + 1 - s) * u s = (a ^ (t - s) * u s) * a := by
      intro s hs
      have hs' : s ≤ t := Nat.lt_succ_iff.mp (Finset.mem_range.mp hs)
      rw [Nat.succ_sub hs', pow_succ]; ring
    rw [recFrom, ih, Finset.sum_range_succ (fun s => a ^ (t + 1 - s) * u s) (t + 1),
      Finset.sum_congr rfl h, ← Finset.sum_mul, Nat.sub_self, pow_zero]
    ring

/-- Running on from time s + 1 with the state reached at time s is the same run. -/
theorem recFrom_shift (a h0 : ℝ) (u : ℕ → ℝ) (s t : ℕ) :
    recFrom a h0 u (s + 1 + t) = recFrom a (recFrom a h0 u s) (fun r => u (s + 1 + r)) t := by
  induction t with
  | zero => rfl
  | succ t ih =>
    rw [show s + 1 + (t + 1) = (s + 1 + t) + 1 from rfl, recFrom, ih]
    rfl

/-- The sum of the last min (i+1) m inputs ending at i, the input of lag j weighted by a^j. -/
def window (a : ℝ) (v : ℕ → ℝ) (m i : ℕ) : ℝ :=
  ∑ j ∈ Finset.range (min (i + 1) m), a ^ j * v (i - j)

/-- The invariant of the doubling scan: a step of offset m with factor a^m turns windows of width m into
    windows of width 2 m, because the window of width m ending at i - m, times a^m, is the part of the window of
    width 2 m ending at i that has lag at least m. -/
theorem dstep_window (a : ℝ) (v : ℕ → ℝ) (m : ℕ) (w : ℕ → ℝ) (hw : ∀ i, w i = window a v m i) (i : ℕ) :
    dstep (a ^ m) m w i = window a v (2 * m) i := by
  unfold dstep
  split_ifs with h
  · rw [hw, hw]
    unfold window
    have h1 : min (i + 1) m = m := by omega
    have h2 : min (i + 1) (2 * m) = m + min (i - m + 1) m := by omega
    rw [h1, h2, Finset.sum_range_add, Finset.mul_sum]
    congr 1
    apply Finset.sum_congr rfl
    intro j _
    rw [pow_add, Nat.sub_sub]; ring
  · rw [hw]
    unfold window
    have h1 : min (i + 1) m = min (i + 1) (2 * m) := by omega
    rw [h1]

/-- After the four doubling steps with factors a, a², a⁴, a⁸, entry i < 16 is Σ_{j ≤ i} a^(i-j) v j. -/
theorem scan16_eq (a : ℝ) (v : ℕ → ℝ) (i : ℕ) (hi : i < 16) :
    scan16 (a ^ 1) (a ^ 2) (a ^ 4) (a ^ 8) v i = ∑ j ∈ Finset.range (i + 1), a ^ (i - j) * v j := by
  have h0 : ∀ i, v i = window a v 1 i := by
    intro i
    unfold window
    rw [show min (i + 1) 1 = 1 by omega]
    simp
  have h1 : ∀ i, dstep (a ^ 1) 1 v i = window a v 2 i := dstep_window a v 1 v h0
  have h2 : ∀ i, dstep (a ^ 2) 2 _ i = window a v 4 i := dstep_window a v 2 _ h1
  have h4 : ∀ i, dstep (a ^ 4) 4 _ i = window a v 8 i := dstep_window a v 4 _ h2
  have h8 : ∀ i, dstep (a ^ 8) 8 _ i = window a v 16 i := dstep_window a v 8 _ h4
  unfold scan16
  rw [h8 i]
  unfold window
  rw [show min (i + 1) 16 = i + 1 by omega,
    ← Finset.sum_range_reflect (fun j => a ^ (i - j) * v j) (i + 1)]
  apply Finset.sum_congr rfl
  intro j hj
  have hj' : j ≤ i := Nat.lt_succ_iff.mp (Finset.mem_range.mp hj)
  rw [show i + 1 - 1 - j = i - j by omega, show i - (i - j) = j by omega]

/-- A sum over n * ch consecutive indices is the sum over ch chunks of n. -/
theorem sum_range_mul (n : ℕ) (f : ℕ → ℝ) (ch : ℕ) :
    ∑ s ∈ Finset.range (n * ch), f s = ∑ c ∈ Finset.range ch, ∑ j ∈ Finset.range n, f (n * c + j) := by
  induction ch with
  | zero => simp
  | succ ch ih => rw [Nat.mul_succ, Finset.sum_range_add, ih, Finset.sum_range_succ]

/-- The chunked evaluation: at step g of chunk ch the state is the chunk's own scan entry S ch g plus a^(g+1) times
    the state entering the chunk, which is (a¹⁶)^ch h0 plus (for ch > 0) the scan P over the earlier chunks' last
    entries. The closed form's sum over s ≤ 16 ch + g splits into the ch whole chunks before and the g + 1 steps of
    chunk ch; a step s = 16 c + j of an earlier chunk has lag (g + 1) + 16 (ch - 1 - c) + (15 - j). -/
theorem chunked (a h0 : ℝ) (u : ℕ → ℝ) (ch g : ℕ) (hch : ch < 16) (hg : g < 16) :
    recFrom a h0 u (16 * ch + g)
      = S a u ch g + a ^ (g + 1) * ((a ^ 16) ^ ch * h0 + if ch = 0 then 0 else P a u (ch - 1)) := by
  rw [recFrom_closed]
  have hS : S a u ch g = ∑ j ∈ Finset.range (g + 1), a ^ (g - j) * u (16 * ch + j) :=
    scan16_eq a _ g hg
  have hsplit : ∑ s ∈ Finset.range (16 * ch + g + 1), a ^ (16 * ch + g - s) * u s
      = (∑ s ∈ Finset.range (16 * ch), a ^ (16 * ch + g - s) * u s) + S a u ch g := by
    rw [hS, Nat.add_assoc, Finset.sum_range_add]
    congr 1
    apply Finset.sum_congr rfl
    intro j _
    rw [show 16 * ch + g - (16 * ch + j) = g - j by omega]
  have hQ : ∑ s ∈ Finset.range (16 * ch), a ^ (16 * ch + g - s) * u s
      = a ^ (g + 1) * ∑ c ∈ Finset.range ch, (a ^ 16) ^ (ch - 1 - c) * S a u c 15 := by
    rw [sum_range_mul, Finset.mul_sum]
    apply Finset.sum_congr rfl
    intro c hc
    have hc' : c < ch := Finset.mem_range.mp hc
    have hSc : S a u c 15 = ∑ j ∈ Finset.range (15 + 1), a ^ (15 - j) * u (16 * c + j) :=
      scan16_eq a _ 15 (by norm_num)
    rw [hSc, Finset.mul_sum, Finset.mul_sum]
    apply Finset.sum_congr rfl
    intro j hj
    have hj' : j < 16 := Finset.mem_range.mp hj
    rw [show 16 * ch + g - (16 * c + j) = (g + 1) + 16 * (ch - 1 - c) + (15 - j) by omega,
      pow_add, pow_add, pow_mul]
    ring
  have hpow : a ^ (16 * ch + g + 1) = a ^ (g + 1) * (a ^ 16) ^ ch := by
    rw [show 16 * ch + g + 1 = (g + 1) + 16 * ch by omega, pow_add, pow_mul]
  rw [hsplit, hQ, hpow]
  rcases Nat.eq_zero_or_pos ch with h0 | hpos
  · subst h0
    simp
    ring
  · have hP : P a u (ch - 1) = ∑ c ∈ Finset.range ch, (a ^ 16) ^ (ch - 1 - c) * S a u c 15 := by
      have h := scan16_eq (a ^ 16) (fun c => S a u c 15) (ch - 1) (by omega)
      rw [show ch - 1 + 1 = ch by omega] at h
      exact h
    rw [if_neg (by omega), hP]
    ring

/-- The scan inside a chunk is the recurrence run over that chunk's sixteen inputs from the zero state. -/
theorem S_eq_rec (a : ℝ) (u : ℕ → ℝ) (c g : ℕ) (hg : g < 16) :
    S a u c g = recFrom a 0 (fun j => u (16 * c + j)) g := by
  rw [recFrom_closed, mul_zero, zero_add]
  exact scan16_eq a _ g hg

/-- The scan over the chunks' last entries is the recurrence's state at the end of chunk ch when the entering
    state is zero: step s = 16 c + j has lag 16 (ch - c) + (15 - j) at time 16 ch + 15. -/
theorem P_eq_rec (a : ℝ) (u : ℕ → ℝ) (ch : ℕ) (hch : ch < 16) :
    P a u ch = recFrom a 0 u (16 * ch + 15) := by
  rw [recFrom_closed, mul_zero, zero_add, show 16 * ch + 15 + 1 = 16 * (ch + 1) by omega, sum_range_mul]
  have hP : P a u ch = ∑ c ∈ Finset.range (ch + 1), (a ^ 16) ^ (ch - c) * S a u c 15 :=
    scan16_eq (a ^ 16) (fun c => S a u c 15) ch hch
  rw [hP]
  apply Finset.sum_congr rfl
  intro c hc
  have hc' : c ≤ ch := Nat.lt_succ_iff.mp (Finset.mem_range.mp hc)
  have hSc : S a u c 15 = ∑ j ∈ Finset.range (15 + 1), a ^ (15 - j) * u (16 * c + j) :=
    scan16_eq a _ 15 (by norm_num)
  rw [hSc, Finset.mul_sum]
  apply Finset.sum_congr rfl
  intro j hj
  have hj' : j < 16 := Finset.mem_range.mp hj
  rw [show 16 * ch + 15 - (16 * c + j) = 16 * (ch - c) + (15 - j) by omega, pow_add, pow_mul]
  ring

/-- info: 'Cert.Lib.Scan.chunked' depends on axioms: [propext, Classical.choice, Quot.sound] -/
#guard_msgs in
#print axioms chunked

end Cert.Lib.Scan

end
-- ==== Proof.ScanBridge.lean ====
/-
  The chunked doubling-scan evaluation of the recurrence  h(t) = h(t-1) * a + u(t)  carried from the reals to the
  extended reals: when the decay, the entering state and every input are coercions of reals, the recurrence, each
  doubling step and hence the whole chunked evaluation are the coercions of their real counterparts.
-/
import proofs.«900482_g7700000000000483_dist_ssm_v7x_xy2x2_y_b4_s256_d256_n16_f32_1_alg».proof.Proof.Spec
import proofs.«900482_g7700000000000483_dist_ssm_v7x_xy2x2_y_b4_s256_d256_n16_f32_1_alg».proof.Proof.LibScan
import Idealize.ShloMosaic.PureOps.Ideal

noncomputable section

namespace Cert.ScanBridge

open Cert.Lib.Scan

/-- The recurrence on coercions of reals is the coercion of the real recurrence. -/
theorem erecFrom_coe (a h0 : ℝ) (u : ℕ → ℝ) (t : ℕ) :
    Cert.Spec.erecFrom (a : EReal) (h0 : EReal) (fun s => ((u s : ℝ) : EReal)) t
      = ((recFrom a h0 u t : ℝ) : EReal) := by
  induction t with
  | zero => rw [Cert.Spec.erecFrom_zero, recFrom, EReal.coe_add, EReal.coe_mul]
  | succ t ih => rw [Cert.Spec.erecFrom_succ, ih, recFrom, EReal.coe_add, EReal.coe_mul]

/-- One doubling step of offset off on the extended reals: entry i gains r times the entry off places before it. -/
def dstepE (r : EReal) (off : ℕ) (w : ℕ → EReal) : ℕ → EReal :=
  fun i => if off ≤ i then w i + r * w (i - off) else w i

/-- Four doubling steps on the extended reals, of offsets 1, 2, 4 and 8 with factors r1, r2, r4 and r8. -/
def scan16E (r1 r2 r4 r8 : EReal) (v : ℕ → EReal) : ℕ → EReal :=
  dstepE r8 8 (dstepE r4 4 (dstepE r2 2 (dstepE r1 1 v)))

/-- A doubling step on coercions of reals is the coercion of the real doubling step. -/
theorem dstepE_coe (r : ℝ) (off : ℕ) (w : ℕ → ℝ) :
    dstepE (r : EReal) off (fun j => ((w j : ℝ) : EReal)) = fun i => ((dstep r off w i : ℝ) : EReal) := by
  funext i
  unfold dstepE dstep
  split_ifs
  · rw [EReal.coe_add, EReal.coe_mul]
  · rfl

/-- The four doubling steps on coercions of reals are the coercion of the real four steps. -/
theorem scan16E_coe (r1 r2 r4 r8 : ℝ) (v : ℕ → ℝ) (i : ℕ) :
    scan16E r1 r2 r4 r8 (fun j => ((v j : ℝ) : EReal)) i = ((scan16 r1 r2 r4 r8 v i : ℝ) : EReal) := by
  unfold scan16E scan16
  rw [dstepE_coe r1 1 v, dstepE_coe r2 2 (dstep r1 1 v), dstepE_coe r4 4 (dstep r2 2 (dstep r1 1 v)),
    dstepE_coe r8 8 (dstep r4 4 (dstep r2 2 (dstep r1 1 v)))]

/-- The exponential of k times A is the k-th power of the exponential of A. -/
theorem exp_coe_mul_nat (A : ℝ) (k : ℕ) :
    Idealize.ShloMosaic.Ideal.exp (((A * (k : ℝ) : ℝ)) : EReal) = (((Real.exp A) ^ k : ℝ) : EReal) := by
  rw [Idealize.ShloMosaic.Ideal.exp_coe, mul_comm, Real.exp_nat_mul]

/-- The coercion of a finite sum of reals is the sum of the coercions. -/
theorem coe_sum_fin {n : ℕ} (f : Fin n → ℝ) : ((∑ i, f i : ℝ) : EReal) = ∑ i, ((f i : ℝ) : EReal) := by
  have key : ∀ s : Finset (Fin n), ((∑ i ∈ s, f i : ℝ) : EReal) = ∑ i ∈ s, ((f i : ℝ) : EReal) := by
    intro s
    refine Finset.induction_on s ?_ ?_
    · simp
    · intro a s ha ih
      rw [Finset.sum_insert ha, Finset.sum_insert ha, EReal.coe_add, ih]
  exact key Finset.univ

/-- The scan inside chunk c on the extended reals, with factors the coercions of a, a², a⁴, a⁸. -/
def SE (a : ℝ) (u : ℕ → ℝ) (c : ℕ) : ℕ → EReal :=
  scan16E ((a ^ 1 : ℝ) : EReal) ((a ^ 2 : ℝ) : EReal) ((a ^ 4 : ℝ) : EReal) ((a ^ 8 : ℝ) : EReal)
    (fun j => ((u (16 * c + j) : ℝ) : EReal))

/-- The scan over the chunks' last entries on the extended reals, with the sixteen-step decay a¹⁶ in place of a. -/
def PE (a : ℝ) (u : ℕ → ℝ) : ℕ → EReal :=
  scan16E (((a ^ 16) ^ 1 : ℝ) : EReal) (((a ^ 16) ^ 2 : ℝ) : EReal) (((a ^ 16) ^ 4 : ℝ) : EReal)
    (((a ^ 16) ^ 8 : ℝ) : EReal) (fun c => SE a u c 15)

/-- The extended-real scan inside a chunk is the coercion of the real one. -/
theorem SE_coe (a : ℝ) (u : ℕ → ℝ) (c g : ℕ) : SE a u c g = ((S a u c g : ℝ) : EReal) :=
  scan16E_coe (a ^ 1) (a ^ 2) (a ^ 4) (a ^ 8) (fun j => u (16 * c + j)) g

/-- The extended-real scan over the chunks' last entries is the coercion of the real one. -/
theorem PE_coe (a : ℝ) (u : ℕ → ℝ) (ch : ℕ) : PE a u ch = ((P a u ch : ℝ) : EReal) := by
  have h : (fun c => SE a u c 15) = fun c => ((S a u c 15 : ℝ) : EReal) := funext fun c => SE_coe a u c 15
  unfold PE
  rw [h]
  exact scan16E_coe ((a ^ 16) ^ 1) ((a ^ 16) ^ 2) ((a ^ 16) ^ 4) ((a ^ 16) ^ 8) (fun c => S a u c 15) ch

/-- The chunked evaluation on the extended reals, for a real decay a: at step g of chunk ch the state is the chunk's own
    scan entry plus a^(g+1) times the state entering the chunk. -/
theorem chunkedE_gen (a h0 : ℝ) (u : ℕ → ℝ) (ch g : ℕ) (hch : ch < 16) (hg : g < 16) :
    Cert.Spec.erecFrom ((a : ℝ) : EReal) (h0 : EReal) (fun s => ((u s : ℝ) : EReal)) (16 * ch + g)
      = SE a u ch g + ((a ^ (g + 1) : ℝ) : EReal)
          * ((((a ^ 16) ^ ch : ℝ) : EReal) * (h0 : EReal) + if ch = 0 then 0 else PE a u (ch - 1)) := by
  rw [erecFrom_coe, chunked a h0 u ch g hch hg, SE_coe]
  by_cases h : ch = 0
  · simp only [if_pos h, add_zero, EReal.coe_add, EReal.coe_mul]
  · simp only [if_neg h, PE_coe, EReal.coe_add, EReal.coe_mul]

/-- The chunked evaluation on the extended reals with decay a = exp A. -/
theorem chunkedE (A h0 : ℝ) (u : ℕ → ℝ) (ch g : ℕ) (hch : ch < 16) (hg : g < 16) :
    Cert.Spec.erecFrom ((Real.exp A : ℝ) : EReal) (h0 : EReal) (fun s => ((u s : ℝ) : EReal)) (16 * ch + g)
      = SE (Real.exp A) u ch g + (((Real.exp A) ^ (g + 1) : ℝ) : EReal)
          * (((((Real.exp A) ^ 16) ^ ch : ℝ) : EReal) * (h0 : EReal)
              + if ch = 0 then 0 else PE (Real.exp A) u (ch - 1)) :=
  chunkedE_gen (Real.exp A) h0 u ch g hch hg

/-- The extended-real scan inside a chunk is the recurrence run over that chunk's inputs from the zero state. -/
theorem SE_eq_rec (a : ℝ) (u : ℕ → ℝ) (c g : ℕ) (hg : g < 16) :
    SE a u c g = Cert.Spec.erecFrom ((a : ℝ) : EReal) 0 (fun j => ((u (16 * c + j) : ℝ) : EReal)) g := by
  have h := erecFrom_coe a 0 (fun j => u (16 * c + j)) g
  rw [EReal.coe_zero] at h
  rw [h, SE_coe, S_eq_rec a u c g hg]

/-- The extended-real scan over the chunks' last entries is the recurrence's state at the end of chunk ch when the
    entering state is zero. -/
theorem PE_eq_rec (a : ℝ) (u : ℕ → ℝ) (ch : ℕ) (hch : ch < 16) :
    PE a u ch = Cert.Spec.erecFrom ((a : ℝ) : EReal) 0 (fun s => ((u s : ℝ) : EReal)) (16 * ch + 15) := by
  have h := erecFrom_coe a 0 u (16 * ch + 15)
  rw [EReal.coe_zero] at h
  rw [h, PE_coe, P_eq_rec a u ch hch]

/-- info: 'Cert.ScanBridge.chunkedE' depends on axioms: [propext, Classical.choice, Quot.sound] -/
#guard_msgs in
#print axioms chunkedE

end Cert.ScanBridge

end
-- ==== Proof.KLevels.lean ====
/-
  The state buffer [2, 16, 16, 16, 256] (batch row, state index n, chunk, position g in the chunk, channel d) is
  written once whole and then four times on its rows g ≥ 1, 2, 4, 8: each time the row g takes its old value plus
  exp (A · off) times the old row g - off. Read along g these are the four doubling steps of a scan.
-/
import proofs.«900482_g7700000000000483_dist_ssm_v7x_xy2x2_y_b4_s256_d256_n16_f32_1_alg».proof.Proof.KVal
import proofs.«900482_g7700000000000483_dist_ssm_v7x_xy2x2_y_b4_s256_d256_n16_f32_1_alg».proof.Proof.ScanBridge
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KLevels

open Idealize.ShloMosaic Idealize.ShloMosaic.ValueIdx Idealize.SL.Sem Cert.KernelIdeal Cert.ScanBridge

/-- The shape of the rows a doubling step touches: sz rows of the in-chunk axis. -/
abbrev St (sz : ℕ) : Shape := ⟨5, ![2, 16, 16, sz, 256]⟩

/-- A store into the rows g ≥ off of the in-chunk axis, over earlier stores, read at one entry: the payload where
    the entry's row is at least off, the earlier stores elsewhere. -/
theorem canon_cons_tail (off sz : ℕ) (hsz : off + sz = 16)
    (inb : ∀ a, (![0, 0, 0, off, 0] : Fin 5 → ℕ) a + (St sz).size a ≤ S2x16x16x16x256.size a)
    (w : (St sz).Idx → Elt Ideal .f32)
    (L : List (View.Piece (Elt Ideal) S2x16x16x16x256 .f32)) (bl : Fin 2) (n ch g : Fin 16) (d : Fin 256) :
    View.canon (⟨Rect.unit (s := S2x16x16x16x256) ![0, 0, 0, off, 0] (St sz).size inb, w⟩ :: L) (ix5 bl n ch g d)
      = if h : off ≤ g.val then w (ix5 bl n ch ⟨g.val - off, by omega⟩ d) else View.canon L (ix5 bl n ch g d) := by
  split
  · rename_i h
    have e : (ix5 bl n ch g d : S2x16x16x16x256.Idx)
        = (Rect.unit (s := S2x16x16x16x256) ![0, 0, 0, off, 0] (St sz).size inb).emb
            (ix5 bl n ch ⟨g.val - off, by omega⟩ d) := by
      funext a; apply Fin.ext; rw [Rect.emb_apply]
      match a with
      | ⟨0, _⟩ => show bl.val = 0 + 1 * bl.val; omega
      | ⟨1, _⟩ => show n.val = 0 + 1 * n.val; omega
      | ⟨2, _⟩ => show ch.val = 0 + 1 * ch.val; omega
      | ⟨3, _⟩ => show g.val = off + 1 * (g.val - off); omega
      | ⟨4, _⟩ => show d.val = 0 + 1 * d.val; omega
    rw [e, View.canon_cons_emb]
  · rename_i h
    refine View.canon_cons_of_not_mem _ _ ?_
    intro hm
    have h3 := ((Rect.mem_set_unit (inb := inb)).mp hm ⟨3, by decide⟩).1
    exact h (show off ≤ g.val from h3)

/-- The index a load of sz rows from row off on reads its entry (…, g, …) at: row g + off. -/
theorem idx_tail (off sz : ℕ) (hsz : off + sz ≤ 16)
    (inb : ∀ a, (![0, 0, 0, off, 0] : Fin 5 → ℕ) a + (St sz).size a ≤ S2x16x16x16x256.size a)
    (bl : Fin 2) (n ch : Fin 16) (g : Fin sz) (d : Fin 256) :
    (Rect.unit (s := S2x16x16x16x256) ![0, 0, 0, off, 0] (St sz).size inb).toLoadRect.idx (ix5 bl n ch g d)
      = ix5 bl n ch ⟨g.val + off, by have := g.isLt; omega⟩ d := by
  funext a; apply Fin.ext
  match a with
  | ⟨0, _⟩ => show 0 + 1 * bl.val = bl.val; omega
  | ⟨1, _⟩ => show 0 + 1 * n.val = n.val; omega
  | ⟨2, _⟩ => show 0 + 1 * ch.val = ch.val; omega
  | ⟨3, _⟩ => show off + 1 * g.val = g.val + off; omega
  | ⟨4, _⟩ => show 0 + 1 * d.val = d.val; omega

/-- A [16, 256] array of factors laid along the state-index and channel axes and repeated over the others. -/
theorem factor_apply (sz : ℕ) (e : FVec Ideal S16x256 .f32)
    (hc : S16x256.ShapeCasts S1x16x1x1x256) (hb : S1x16x1x1x256.Broadcasts (St sz))
    (bl : Fin 2) (n ch : Fin 16) (g : Fin sz) (d : Fin 256) :
    broadcastTo (St sz) (shapeCast S1x16x1x1x256 e hc) hb (ix5 bl n ch g d) = e (ix2 n d) := by
  rw [broadcastTo_apply _ hb (ix5 bl n ch g d) (ix5 0 n 0 0 d) (fun a => by
        match a with
        | ⟨0, _⟩ => rfl
        | ⟨1, _⟩ => rfl
        | ⟨2, _⟩ => rfl
        | ⟨3, _⟩ => rfl
        | ⟨4, _⟩ => rfl),
    shapeCast_apply e hc (ix5 0 n 0 0 d) (ix2 n d) (by
        rw [Shape.rowMajor_val_two, Shape.rowMajor_val_five]
        show n.val * 256 + d.val = ((((0 : ℕ) * 16 + n.val) * 1 + 0) * 1 + 0) * 256 + d.val
        omega)]

/-- The decay factor of a doubling step: exp of the exponent times the step's offset, as the kernel spells it. -/
def efac (v22 : FVec Ideal S16x256 .f32) (w : BitVec 32) (n : Fin 16) (d : Fin 256) : EReal :=
  Ideal.exp (v22 (ix2 n d) * Ideal.ofBits .f32 w)

theorem efac_vec (v22 : FVec Ideal S16x256 .f32) (w : BitVec 32) (n : Fin 16) (d : Fin 256) :
    (exp (mulf v22 (broadcast S16x256 (Scalar.ofBits (F := Ideal) .f32 w))) : FVec Ideal S16x256 .f32) (ix2 n d) = efac v22 w n d := by
  rfl

/-! ## The doubling steps' payloads at an entry: the old row plus the factor times the shifted old row -/

theorem pay6_apply (v22 : FVec Ideal S16x256 .f32) (a b : Vec Ideal S2x16x16x15x256 .f32)
    (bl : Fin 2) (n ch : Fin 16) (g : Fin 15) (d : Fin 256) :
    Gen.k0_pay6 v22 a b (ix5 bl n ch g d) = a (ix5 bl n ch g d) + efac v22 0x3F800000#32 n d * b (ix5 bl n ch g d) := by
  unfold Gen.k0_pay6
  rw [shapeCast_self, addf_apply, mulf_apply, factor_apply 15 _ _ _ bl n ch g d, efac_vec]

theorem pay8_apply (v22 : FVec Ideal S16x256 .f32) (a b : Vec Ideal S2x16x16x14x256 .f32)
    (bl : Fin 2) (n ch : Fin 16) (g : Fin 14) (d : Fin 256) :
    Gen.k0_pay8 a (Gen.k0_pay7 v22) b (ix5 bl n ch g d) = a (ix5 bl n ch g d) + efac v22 0x40000000#32 n d * b (ix5 bl n ch g d) := by
  unfold Gen.k0_pay8 Gen.k0_pay7
  rw [shapeCast_self, addf_apply, mulf_apply, factor_apply 14 _ _ _ bl n ch g d, efac_vec]

theorem pay9_apply (v22 : FVec Ideal S16x256 .f32) (a b : Vec Ideal S2x16x16x12x256 .f32)
    (bl : Fin 2) (n ch : Fin 16) (g : Fin 12) (d : Fin 256) :
    Gen.k0_pay9 v22 a b (ix5 bl n ch g d) = a (ix5 bl n ch g d) + efac v22 0x40800000#32 n d * b (ix5 bl n ch g d) := by
  unfold Gen.k0_pay9
  rw [shapeCast_self, addf_apply, mulf_apply, factor_apply 12 _ _ _ bl n ch g d, efac_vec]

theorem pay11_apply (v22 : FVec Ideal S16x256 .f32) (a b : Vec Ideal S2x16x16x8x256 .f32)
    (bl : Fin 2) (n ch : Fin 16) (g : Fin 8) (d : Fin 256) :
    Gen.k0_pay11 a (Gen.k0_pay10 v22 b) (ix5 bl n ch g d) = a (ix5 bl n ch g d) + efac v22 0x41000000#32 n d * b (ix5 bl n ch g d) := by
  unfold Gen.k0_pay11 Gen.k0_pay10
  rw [shapeCast_self, addf_apply, mulf_apply, factor_apply 8 _ _ _ bl n ch g d, efac_vec]

/-! ## One level of the state buffer from the one before -/

/-- The entries of the state buffer along the in-chunk axis, as a sequence (zero past the sixteenth). -/
def gseq (H : S2x16x16x16x256.Idx → EReal) (bl : Fin 2) (n ch : Fin 16) (d : Fin 256) : ℕ → EReal :=
  fun g => if h : g < 16 then H (ix5 bl n ch ⟨g, h⟩ d) else 0

theorem gseq_lt (H : S2x16x16x16x256.Idx → EReal) (bl : Fin 2) (n ch : Fin 16) (d : Fin 256) (g : ℕ) (h : g < 16) :
    gseq H bl n ch d g = H (ix5 bl n ch ⟨g, h⟩ d) := dif_pos h

/-- A doubling step only looks at entries below the one it computes. -/
theorem dstepE_congr (r : EReal) (off : ℕ) (w w' : ℕ → EReal) (hw : ∀ i, i < 16 → w i = w' i) (i : ℕ) (hi : i < 16) :
    dstepE r off w i = dstepE r off w' i := by
  unfold dstepE
  rw [hw i hi, hw (i - off) (by omega)]

/-- A store, on the rows g ≥ off, of the old rows plus a factor times the old rows shifted by off, over the earlier
    stores L: along g it is one doubling step of the sequence L left. -/
theorem level (off sz : ℕ) (hsz : off + sz = 16)
    (inbT : ∀ a, (![0, 0, 0, off, 0] : Fin 5 → ℕ) a + (St sz).size a ≤ S2x16x16x16x256.size a)
    (inb0 : ∀ a, (![0, 0, 0, 0, 0] : Fin 5 → ℕ) a + (St sz).size a ≤ S2x16x16x16x256.size a)
    (L : List (View.Piece (Elt Ideal) S2x16x16x16x256 .f32)) (E : Fin 16 → Fin 256 → EReal)
    (w : (St sz).Idx → Elt Ideal .f32)
    (hw : ∀ (bl : Fin 2) (n ch : Fin 16) (g : Fin sz) (d : Fin 256), w (ix5 bl n ch g d)
      = KVal.hld L (Rect.unit (s := S2x16x16x16x256) ![0, 0, 0, off, 0] (St sz).size inbT) (ix5 bl n ch g d)
        + E n d * KVal.hld L (Rect.unit (s := S2x16x16x16x256) ![0, 0, 0, 0, 0] (St sz).size inb0) (ix5 bl n ch g d))
    (bl : Fin 2) (n ch g : Fin 16) (d : Fin 256) :
    View.canon (⟨Rect.unit (s := S2x16x16x16x256) ![0, 0, 0, off, 0] (St sz).size inbT, w⟩ :: L) (ix5 bl n ch g d)
      = dstepE (E n d) off (gseq (View.canon L) bl n ch d) g.val := by
  rw [canon_cons_tail off sz hsz inbT w L]
  unfold dstepE
  by_cases h : off ≤ g.val
  · rw [dif_pos h, if_pos h, hw]
    simp only [KVal.hld_eq]
    rw [idx_tail off sz (le_of_eq hsz) inbT, idx_tail 0 sz (by omega) inb0,
      gseq_lt _ _ _ _ _ g.val g.isLt, gseq_lt _ _ _ _ _ (g.val - off) (by have := g.isLt; omega)]
    have e1 : (⟨g.val - off + off, by have := g.isLt; omega⟩ : Fin 16) = g := Fin.ext (by show g.val - off + off = g.val; omega)
    have e2 : (⟨g.val - off + 0, by have := g.isLt; omega⟩ : Fin 16) = ⟨g.val - off, by have := g.isLt; omega⟩ := Fin.ext (by show g.val - off + 0 = g.val - off; omega)
    rw [e1, e2]
  · rw [dif_neg h, if_neg h, gseq_lt _ _ _ _ _ g.val g.isLt]

/-! ## The five levels -/

variable (m : (ℓ : Loc nD τ sig) → Buf (Elt Ideal) ℓ) (c : Dev nD)

/-- The four factors of the in-chunk scan at state index n and channel d. -/
def E1 (n : Fin 16) (d : Fin 256) : EReal := efac (KVal.v22 m c) 0x3F800000#32 n d
def E2 (n : Fin 16) (d : Fin 256) : EReal := efac (KVal.v22 m c) 0x40000000#32 n d
def E4 (n : Fin 16) (d : Fin 256) : EReal := efac (KVal.v22 m c) 0x40800000#32 n d
def E8 (n : Fin 16) (d : Fin 256) : EReal := efac (KVal.v22 m c) 0x41000000#32 n d

theorem H1_apply (bl : Fin 2) (n ch g : Fin 16) (d : Fin 256) :
    View.canon (KVal.hL1 m c) (ix5 bl n ch g d) = dstepE (E1 m c n d) 1 (gseq (View.canon (KVal.hL0 m c)) bl n ch d) g.val := by
  unfold KVal.hL1
  exact level 1 15 rfl _ _ (KVal.hL0 m c) (E1 m c) _ (fun bl n ch g d => pay6_apply _ _ _ bl n ch g d) bl n ch g d

theorem H2_apply (bl : Fin 2) (n ch g : Fin 16) (d : Fin 256) :
    View.canon (KVal.hL2 m c) (ix5 bl n ch g d) = dstepE (E2 m c n d) 2 (gseq (View.canon (KVal.hL1 m c)) bl n ch d) g.val := by
  unfold KVal.hL2
  exact level 2 14 rfl _ _ (KVal.hL1 m c) (E2 m c) _ (fun bl n ch g d => pay8_apply _ _ _ bl n ch g d) bl n ch g d

theorem H3_apply (bl : Fin 2) (n ch g : Fin 16) (d : Fin 256) :
    View.canon (KVal.hL3 m c) (ix5 bl n ch g d) = dstepE (E4 m c n d) 4 (gseq (View.canon (KVal.hL2 m c)) bl n ch d) g.val := by
  unfold KVal.hL3
  exact level 4 12 rfl _ _ (KVal.hL2 m c) (E4 m c) _ (fun bl n ch g d => pay9_apply _ _ _ bl n ch g d) bl n ch g d

theorem H4_apply (bl : Fin 2) (n ch g : Fin 16) (d : Fin 256) :
    View.canon (KVal.hL4 m c) (ix5 bl n ch g d) = dstepE (E8 m c n d) 8 (gseq (View.canon (KVal.hL3 m c)) bl n ch d) g.val := by
  unfold KVal.hL4
  exact level 8 8 rfl _ _ (KVal.hL3 m c) (E8 m c) _ (fun bl n ch g d => pay11_apply _ _ _ bl n ch g d) bl n ch g d

/-- The state buffer after the four steps, along g: the scan of what the whole store wrote. -/
theorem H4_scan (bl : Fin 2) (n ch g : Fin 16) (d : Fin 256) :
    View.canon (KVal.hL4 m c) (ix5 bl n ch g d)
      = scan16E (E1 m c n d) (E2 m c n d) (E4 m c n d) (E8 m c n d) (gseq (View.canon (KVal.hL0 m c)) bl n ch d) g.val := by
  unfold scan16E
  rw [H4_apply]
  refine dstepE_congr _ _ _ _ (fun i hi => ?_) g.val g.isLt
  rw [gseq_lt _ _ _ _ _ i hi, H3_apply]
  refine dstepE_congr _ _ _ _ (fun i hi => ?_) i hi
  rw [gseq_lt _ _ _ _ _ i hi, H2_apply]
  refine dstepE_congr _ _ _ _ (fun i hi => ?_) i hi
  rw [gseq_lt _ _ _ _ _ i hi, H1_apply]

end Cert.KernelIdeal.KLevels

end
-- ==== Proof.KChunks.lean ====
/-
  The last entries of the sixteen chunks, [2, 16, 16, 256] (batch row, state index n, chunk, channel d), are scanned
  across the chunks by four more doubling steps, each written as: keep the first k chunks, and to every later chunk
  add exp (A · 16 k) times the chunk k places before it. The last chunk of the result is the device's final state.
-/
import proofs.«900482_g7700000000000483_dist_ssm_v7x_xy2x2_y_b4_s256_d256_n16_f32_1_alg».proof.Proof.KLevels

noncomputable section

namespace Cert.KernelIdeal.KChunks

open Idealize.ShloMosaic Idealize.ShloMosaic.ValueIdx Idealize.SL.Sem Cert.KernelIdeal Cert.ScanBridge Cert.KernelIdeal.KLevels

/-- k chunks of the chunk axis. -/
abbrev Sc (k : ℕ) : Shape := ⟨4, ![2, 16, k, 256]⟩

/-- The entries of a [2, 16, 16, 256] array along the chunk axis, as a sequence (zero past the sixteenth). -/
def cseq (X : S2x16x16x256.Idx → EReal) (bl : Fin 2) (n : Fin 16) (d : Fin 256) : ℕ → EReal :=
  fun ch => if h : ch < 16 then X (ix4 bl n ⟨ch, h⟩ d) else 0

theorem cseq_lt (X : S2x16x16x256.Idx → EReal) (bl : Fin 2) (n : Fin 16) (d : Fin 256) (ch : ℕ) (h : ch < 16) :
    cseq X bl n d ch = X (ix4 bl n ⟨ch, h⟩ d) := dif_pos h

/-- A [16, 256] array of factors laid along the state-index and channel axes and repeated over batch rows and chunks. -/
theorem cfactor_apply (sz : ℕ) (e : FVec Ideal S16x256 .f32)
    (hc : S16x256.ShapeCasts S1x16x1x256) (hb : S1x16x1x256.Broadcasts (Sc sz))
    (bl : Fin 2) (n : Fin 16) (ch : Fin sz) (d : Fin 256) :
    broadcastTo (Sc sz) (shapeCast S1x16x1x256 e hc) hb (ix4 bl n ch d) = e (ix2 n d) := by
  rw [broadcastTo_apply _ hb (ix4 bl n ch d) (ix4 0 n 0 d) (fun a => by
        match a with
        | ⟨0, _⟩ => rfl
        | ⟨1, _⟩ => rfl
        | ⟨2, _⟩ => rfl
        | ⟨3, _⟩ => rfl),
    shapeCast_apply e hc (ix4 0 n 0 d) (ix2 n d) (by
        rw [Shape.rowMajor_val_two, Shape.rowMajor_val_four]
        show n.val * 256 + d.val = (((0 : ℕ) * 16 + n.val) * 1 + 0) * 256 + d.val
        omega)]

/-- One doubling step across the chunks: the first k chunks kept, every later chunk plus the factor times the chunk
    k places before it. -/
theorem cstep (k sz : ℕ) (hk : k + sz = 16) (X : FVec Ideal S2x16x16x256 .f32) (f : FVec Ideal (Sc sz) .f32)
    (E : Fin 16 → Fin 256 → EReal) (hf : ∀ (bl : Fin 2) (n : Fin 16) (ch : Fin sz) (d : Fin 256), f (ix4 bl n ch d) = E n d)
    (h0 : S2x16x16x256.Slices ![0, 0, 0, 0] (Sc k)) (hT : S2x16x16x256.Slices ![0, 0, k, 0] (Sc sz))
    (h0' : S2x16x16x256.Slices ![0, 0, 0, 0] (Sc sz)) (hcat : Shape.Concatenates [Sc k, Sc sz] S2x16x16x256 2)
    (bl : Fin 2) (n ch : Fin 16) (d : Fin 256) :
    concatenate S2x16x16x256 2
        [⟨Sc k, extractStridedSlice (Sc k) ![0, 0, 0, 0] X h0⟩,
         ⟨Sc sz, addf (extractStridedSlice (Sc sz) ![0, 0, k, 0] X hT) (mulf f (extractStridedSlice (Sc sz) ![0, 0, 0, 0] X h0'))⟩]
        hcat (ix4 bl n ch d)
      = dstepE (E n d) k (cseq X bl n d) ch.val := by
  unfold dstepE
  by_cases h : k ≤ ch.val
  · have hlt : ch.val - k < sz := by have := ch.isLt; omega
    rw [if_pos h, concatenate_pair_apply_right (t := S2x16x16x256) (s₁ := Sc k) (s₂ := Sc sz) (2 : Fin 4) _ _ hcat (ix4 bl n ch d) rfl rfl (ix4 bl n (⟨ch.val - k, hlt⟩ : Fin sz) d : (Sc sz).Idx)
        (fun b hb => by
          match b with
          | ⟨0, _⟩ => rfl
          | ⟨1, _⟩ => rfl
          | ⟨2, _⟩ => exact absurd rfl hb
          | ⟨3, _⟩ => rfl)
        (by show ch.val - k + k = ch.val; omega),
      addf_apply, mulf_apply, hf,
      extractStridedSlice_apply ![0, 0, k, 0] X hT (ix4 bl n (⟨ch.val - k, hlt⟩ : Fin sz) d : (Sc sz).Idx) (ix4 bl n ch d) (fun a => by
          match a with
          | ⟨0, _⟩ => show bl.val = 0 + bl.val; omega
          | ⟨1, _⟩ => show n.val = 0 + n.val; omega
          | ⟨2, _⟩ => show ch.val = k + (ch.val - k); omega
          | ⟨3, _⟩ => show d.val = 0 + d.val; omega),
      extractStridedSlice_apply ![0, 0, 0, 0] X h0' (ix4 bl n (⟨ch.val - k, hlt⟩ : Fin sz) d : (Sc sz).Idx) (ix4 bl n (⟨ch.val - k, by omega⟩ : Fin 16) d) (fun a => by
          match a with
          | ⟨0, _⟩ => show bl.val = 0 + bl.val; omega
          | ⟨1, _⟩ => show n.val = 0 + n.val; omega
          | ⟨2, _⟩ => show ch.val - k = 0 + (ch.val - k); omega
          | ⟨3, _⟩ => show d.val = 0 + d.val; omega),
      cseq_lt X bl n d ch.val ch.isLt, cseq_lt X bl n d (ch.val - k) (by omega)]
  · have hlt : ch.val < k := by omega
    rw [if_neg h, concatenate_pair_apply_left (t := S2x16x16x256) (s₁ := Sc k) (s₂ := Sc sz) (2 : Fin 4) _ _ hcat (ix4 bl n ch d) rfl (ix4 bl n (⟨ch.val, hlt⟩ : Fin k) d : (Sc k).Idx)
        (fun b => by
          match b with
          | ⟨0, _⟩ => rfl
          | ⟨1, _⟩ => rfl
          | ⟨2, _⟩ => rfl
          | ⟨3, _⟩ => rfl),
      extractStridedSlice_apply ![0, 0, 0, 0] X h0 (ix4 bl n (⟨ch.val, hlt⟩ : Fin k) d : (Sc k).Idx) (ix4 bl n ch d) (fun a => by
          match a with
          | ⟨0, _⟩ => show bl.val = 0 + bl.val; omega
          | ⟨1, _⟩ => show n.val = 0 + n.val; omega
          | ⟨2, _⟩ => show ch.val = 0 + ch.val; omega
          | ⟨3, _⟩ => show d.val = 0 + d.val; omega),
      cseq_lt X bl n d ch.val ch.isLt]

/-- The factor of one step across chunks, as the kernel spells it, at an entry. -/
theorem cfac (v22 : FVec Ideal S16x256 .f32) (sz : ℕ) (w : BitVec 32)
    (hc : S16x256.ShapeCasts S1x16x1x256) (hb : S1x16x1x256.Broadcasts (Sc sz))
    (bl : Fin 2) (n : Fin 16) (ch : Fin sz) (d : Fin 256) :
    broadcastTo (Sc sz) (shapeCast S1x16x1x256 (exp (mulf v22 (broadcast S16x256 (Scalar.ofBits (F := Ideal) .f32 w)))) hc) hb (ix4 bl n ch d)
      = efac v22 w n d :=
  (cfactor_apply sz _ hc hb bl n ch d).trans (efac_vec v22 w n d)

/-- The first three steps across chunks (offsets 1, 2, 4; factors exp (A · 16), exp (A · 32), exp (A · 64)). -/
theorem pay12_apply (v22 : FVec Ideal S16x256 .f32) (v87 : Vec Ideal S2x16x16x1x256 .f32)
    (bl : Fin 2) (n ch : Fin 16) (d : Fin 256) :
    Gen.k0_pay12 v22 v87 (ix4 bl n ch d)
      = dstepE (efac v22 0x42800000#32 n d) 4 (dstepE (efac v22 0x42000000#32 n d) 2 (dstepE (efac v22 0x41800000#32 n d) 1
          (cseq (shapeCast S2x16x16x256 v87 Gen.shapeCasts_S2x16x16x1x256_S2x16x16x256) bl n d))) ch.val := by
  unfold Gen.k0_pay12
  refine (cstep 4 12 rfl _ _ (efac v22 0x42800000#32) (fun bl n ch d => cfac v22 12 _ _ _ bl n ch d) _ _ _ _ bl n ch d).trans ?_
  refine dstepE_congr _ _ _ _ (fun i hi => ?_) ch.val ch.isLt
  rw [cseq_lt _ _ _ _ i hi]
  refine (cstep 2 14 rfl _ _ (efac v22 0x42000000#32) (fun bl n ch d => cfac v22 14 _ _ _ bl n ch d) _ _ _ _ bl n ⟨i, hi⟩ d).trans ?_
  refine dstepE_congr _ _ _ _ (fun i hi => ?_) i hi
  rw [cseq_lt _ _ _ _ i hi]
  exact cstep 1 15 rfl _ _ (efac v22 0x41800000#32) (fun bl n ch d => cfac v22 15 _ _ _ bl n ch d) _ _ _ _ bl n ⟨i, hi⟩ d

/-- The fourth step (offset 8; factor exp (A · 128)), over the first three. -/
theorem pay16_apply (v22 : FVec Ideal S16x256 .f32) (v87 : Vec Ideal S2x16x16x1x256 .f32)
    (bl : Fin 2) (n ch : Fin 16) (d : Fin 256) :
    Gen.k0_pay16 (Gen.k0_pay12 v22 v87) (Gen.k0_pay13 v22 v87) (Gen.k0_pay14 v22 v87) (Gen.k0_pay15 v22) (ix4 bl n ch d)
      = dstepE (efac v22 0x43000000#32 n d) 8 (cseq (Gen.k0_pay12 v22 v87) bl n d) ch.val := by
  unfold Gen.k0_pay16 Gen.k0_pay13 Gen.k0_pay14 Gen.k0_pay15
  exact cstep 8 8 rfl (Gen.k0_pay12 v22 v87) _ (efac v22 0x43000000#32) (fun bl n ch d => cfac v22 8 _ _ _ bl n ch d) _ _ _ _ bl n ch d

/-- The scan across chunks of the chunks' last entries. -/
theorem P16_scan (v22 : FVec Ideal S16x256 .f32) (v87 : Vec Ideal S2x16x16x1x256 .f32)
    (bl : Fin 2) (n ch : Fin 16) (d : Fin 256) :
    Gen.k0_pay16 (Gen.k0_pay12 v22 v87) (Gen.k0_pay13 v22 v87) (Gen.k0_pay14 v22 v87) (Gen.k0_pay15 v22) (ix4 bl n ch d)
      = scan16E (efac v22 0x41800000#32 n d) (efac v22 0x42000000#32 n d) (efac v22 0x42800000#32 n d) (efac v22 0x43000000#32 n d)
          (cseq (shapeCast S2x16x16x256 v87 Gen.shapeCasts_S2x16x16x1x256_S2x16x16x256) bl n d) ch.val := by
  unfold scan16E
  rw [pay16_apply]
  refine dstepE_congr _ _ _ _ (fun i hi => ?_) ch.val ch.isLt
  rw [cseq_lt _ _ _ _ i hi]
  exact pay12_apply v22 v87 bl n ⟨i, hi⟩ d

/-- The scan's input at chunk ch: the chunk's one last row. -/
theorem X0_apply (v87 : Vec Ideal S2x16x16x1x256 .f32) (bl : Fin 2) (n ch : Fin 16) (d : Fin 256) :
    shapeCast S2x16x16x256 v87 Gen.shapeCasts_S2x16x16x1x256_S2x16x16x256 (ix4 bl n ch d) = v87 (ix5 bl n ch 0 d) :=
  shapeCast_apply v87 _ (ix4 bl n ch d) (ix5 bl n ch 0 d) (by
    rw [Shape.rowMajor_val_four, Shape.rowMajor_val_five]
    show (((bl.val * 16 + n.val) * 16 + ch.val) * 1 + 0) * 256 + d.val = ((bl.val * 16 + n.val) * 16 + ch.val) * 256 + d.val
    omega)

/-- The final state: the last chunk of the scan across chunks. -/
theorem pay17_apply (X : FVec Ideal S2x16x16x256 .f32) (v125 v126 : FVec Ideal S2x16x8x256 .f32) (v127 : FVec Ideal S1x16x1x256 .f32)
    (bl : Fin 2) (n : Fin 16) (d : Fin 256) :
    Gen.k0_pay17 X v125 v126 v127 (ix3 bl n d) = Gen.k0_pay16 X v125 v126 v127 (ix4 bl n 15 d) := by
  unfold Gen.k0_pay17
  rw [shapeCast_self,
    shapeCast_apply _ Gen.shapeCasts_S2x16x1x256_S2x16x256 (ix3 bl n d) (ix4 bl n 0 d) (by
      rw [Shape.rowMajor_val_three, Shape.rowMajor_val_four]
      show ((bl.val * 16 + n.val) * 1 + 0) * 256 + d.val = (bl.val * 16 + n.val) * 256 + d.val
      omega),
    extractStridedSlice_apply ![0, 0, 15, 0] _ Gen.slices_S2x16x16x256_o0_0_15_0_S2x16x1x256 (ix4 bl n 0 d) (ix4 bl n 15 d) (fun a => by
      match a with
      | ⟨0, _⟩ => show bl.val = 0 + bl.val; omega
      | ⟨1, _⟩ => show n.val = 0 + n.val; omega
      | ⟨2, _⟩ => show (15 : ℕ) = 15 + 0; omega
      | ⟨3, _⟩ => show d.val = 0 + d.val; omega)]

/-! ## On the device's own values -/

variable (m : (ℓ : Loc nD τ sig) → Buf (Elt Ideal) ℓ) (c : Dev nD)

/-- The chunks' last rows as the body loads them: row 15 of the state buffer after the four steps. -/
theorem v87_apply (bl : Fin 2) (n ch : Fin 16) (d : Fin 256) :
    KVal.v87 m c (ix5 bl n ch 0 d) = View.canon (KVal.hL4 m c) (ix5 bl n ch 15 d) := by
  unfold KVal.v87
  simp only [KVal.hld_eq]
  rw [idx_tail 15 1 (by omega) _ bl n ch 0 d]
  rfl

/-- The four factors of the scan across chunks at state index n and channel d. -/
def F16 (n : Fin 16) (d : Fin 256) : EReal := efac (KVal.v22 m c) 0x41800000#32 n d
def F32 (n : Fin 16) (d : Fin 256) : EReal := efac (KVal.v22 m c) 0x42000000#32 n d
def F64 (n : Fin 16) (d : Fin 256) : EReal := efac (KVal.v22 m c) 0x42800000#32 n d
def F128 (n : Fin 16) (d : Fin 256) : EReal := efac (KVal.v22 m c) 0x43000000#32 n d

/-- The chunk ends' states from a zero start (the device's local scan across its sixteen chunks). -/
def P16 (bl : Fin 2) (n ch : Fin 16) (d : Fin 256) : EReal :=
  Gen.k0_pay16 (KVal.v121 m c) (KVal.v125 m c) (KVal.v126 m c) (KVal.v127 m c) (ix4 bl n ch d)

theorem P16_eq (bl : Fin 2) (n ch : Fin 16) (d : Fin 256) :
    P16 m c bl n ch d = scan16E (F16 m c n d) (F32 m c n d) (F64 m c n d) (F128 m c n d)
      (fun c' => if h : c' < 16 then View.canon (KVal.hL4 m c) (ix5 bl n ⟨c', h⟩ 15 d) else 0) ch.val := by
  unfold P16 KVal.v121 KVal.v125 KVal.v126 KVal.v127
  rw [P16_scan]
  refine congrFun (congrArg _ (funext fun c' => ?_)) _
  unfold cseq
  split
  · rw [X0_apply, v87_apply]
  · rfl

/-- The state a device sends on: its last chunk end. -/
theorem hsendV_apply (bl : Fin 2) (n : Fin 16) (d : Fin 256) : KVal.hsendV m c (ix3 bl n d) = P16 m c bl n 15 d := by
  unfold KVal.hsendV P16
  exact pay17_apply _ _ _ _ bl n d

end Cert.KernelIdeal.KChunks

end
-- ==== Proof.KMath.lean ====
/-
  The per-entry formula of the chunked scan, in the shape the program spells it, joined to the recurrence of the
  specification. The formula's factors are exponentials exp (A k) of the decay exponent A times a literal k; for a real
  A these are the powers (exp A)^k, so the formula is the chunked doubling-scan evaluation with decay a = exp A, which is
  the sequential recurrence. The sequence of 512 steps is run in two halves of 256, the second entering with the state the
  first one ends in; summed over the sixteen state indices against C this is the specification's result.
-/
import proofs.«900482_g7700000000000483_dist_ssm_v7x_xy2x2_y_b4_s256_d256_n16_f32_1_alg».proof.Proof.Spec
import proofs.«900482_g7700000000000483_dist_ssm_v7x_xy2x2_y_b4_s256_d256_n16_f32_1_alg».proof.Proof.ScanBridge

noncomputable section

namespace Cert.KMath

open Idealize.ShloMosaic Idealize.ShloMosaic.ValueIdx Cert.ScanBridge

/-- A doubling step at an entry below n reads only entries below n. -/
theorem dstepE_congr (r : EReal) (off n : ℕ) (v v' : ℕ → EReal) (h : ∀ i, i < n → v i = v' i) (i : ℕ) (hi : i < n) :
    dstepE r off v i = dstepE r off v' i := by
  unfold dstepE
  split_ifs with ho
  · rw [h i hi, h (i - off) (by omega)]
  · exact h i hi

/-- The four doubling steps at an entry below 16 read only entries below 16. -/
theorem scan16E_congr (r1 r2 r4 r8 : EReal) (v v' : ℕ → EReal) (h : ∀ i, i < 16 → v i = v' i) (i : ℕ) (hi : i < 16) :
    scan16E r1 r2 r4 r8 v i = scan16E r1 r2 r4 r8 v' i := by
  unfold scan16E
  exact dstepE_congr r8 8 16 _ _ (dstepE_congr r4 4 16 _ _ (dstepE_congr r2 2 16 _ _ (dstepE_congr r1 1 16 _ _ h))) i hi

/-- The scan inside chunk ch as the program spells it: factors exp (A·1), exp (A·2), exp (A·4), exp (A·8). -/
def Sk (A : EReal) (w : ℕ → ℕ → EReal) (ch : ℕ) : ℕ → EReal :=
  scan16E (Ideal.exp (A * ((1 : ℝ) : EReal))) (Ideal.exp (A * ((2 : ℝ) : EReal))) (Ideal.exp (A * ((4 : ℝ) : EReal)))
    (Ideal.exp (A * ((8 : ℝ) : EReal))) (w ch)

/-- The scan over the chunks' last entries as the program spells it: factors exp (A·16), …, exp (A·128). -/
def Pk (A : EReal) (w : ℕ → ℕ → EReal) : ℕ → EReal :=
  scan16E (Ideal.exp (A * ((16 : ℝ) : EReal))) (Ideal.exp (A * ((32 : ℝ) : EReal))) (Ideal.exp (A * ((64 : ℝ) : EReal)))
    (Ideal.exp (A * ((128 : ℝ) : EReal))) (fun c => if c < 16 then Sk A w c 15 else 0)

/-- The entry at position g of chunk ch as the program spells it: the chunk's own scan entry plus exp (A (g+1)) times the
    state entering the chunk. -/
def kentry (A h0 : EReal) (w : ℕ → ℕ → EReal) (ch g : ℕ) : EReal :=
  Sk A w ch g + Ideal.exp (A * (((g + 1 : ℕ) : ℝ) : EReal))
    * (if ch = 0 then Ideal.exp ((A * (((0 : ℕ) : ℝ) : EReal)) * ((16 : ℝ) : EReal)) * h0
       else Ideal.exp ((A * (((ch : ℕ) : ℝ) : EReal)) * ((16 : ℝ) : EReal)) * h0 + Pk A w (ch - 1))

/-- exp (A c) for a real A and a literal c = k is (exp A)^k. -/
theorem exp_lit (Ar c : ℝ) (k : ℕ) (hc : c = (k : ℝ)) :
    Ideal.exp ((Ar : EReal) * (c : EReal)) = ((Real.exp Ar ^ k : ℝ) : EReal) := by
  rw [hc, ← EReal.coe_mul]
  exact exp_coe_mul_nat Ar k

/-- exp (A c) for a real A and a literal c = 16 k is ((exp A)^16)^k. -/
theorem exp_lit16 (Ar c : ℝ) (k : ℕ) (hc : c = ((16 * k : ℕ) : ℝ)) :
    Ideal.exp ((Ar : EReal) * (c : EReal)) = (((Real.exp Ar ^ 16) ^ k : ℝ) : EReal) := by
  rw [hc, ← EReal.coe_mul, exp_coe_mul_nat, pow_mul]

/-- exp ((A ch) 16) for a real A is ((exp A)^16)^ch. -/
theorem exp_chunk (Ar : ℝ) (ch : ℕ) :
    Ideal.exp (((Ar : EReal) * (((ch : ℕ) : ℝ) : EReal)) * ((16 : ℝ) : EReal))
      = (((Real.exp Ar ^ 16) ^ ch : ℝ) : EReal) := by
  rw [← EReal.coe_mul, ← EReal.coe_mul, show Ar * (ch : ℝ) * 16 = Ar * ((16 * ch : ℕ) : ℝ) by push_cast; ring,
    exp_coe_mul_nat, pow_mul]

section
variable (Ar : ℝ) (ur : ℕ → ℝ) (w : ℕ → ℕ → EReal)
  (hw : ∀ ch g, ch < 16 → g < 16 → w ch g = ((ur (16 * ch + g) : ℝ) : EReal))
include hw

/-- The spelled scan inside a chunk is the chunk scan with decay exp A. -/
theorem Sk_eq (ch g : ℕ) (hch : ch < 16) (hg : g < 16) : Sk (Ar : EReal) w ch g = SE (Real.exp Ar) ur ch g := by
  unfold Sk SE
  rw [exp_lit Ar 1 1 (by norm_num), exp_lit Ar 2 2 (by norm_num), exp_lit Ar 4 4 (by norm_num),
    exp_lit Ar 8 8 (by norm_num)]
  exact scan16E_congr _ _ _ _ _ _ (fun i hi => hw ch i hch hi) g hg

/-- The spelled scan over the chunks' last entries is the one with decay exp A. -/
theorem Pk_eq (c : ℕ) (hc : c < 16) : Pk (Ar : EReal) w c = PE (Real.exp Ar) ur c := by
  unfold Pk PE
  rw [exp_lit16 Ar 16 1 (by norm_num), exp_lit16 Ar 32 2 (by norm_num), exp_lit16 Ar 64 4 (by norm_num),
    exp_lit16 Ar 128 8 (by norm_num)]
  refine scan16E_congr _ _ _ _ _ _ (fun i hi => ?_) c hc
  show (if i < 16 then Sk (Ar : EReal) w i 15 else 0) = SE (Real.exp Ar) ur i 15
  rw [if_pos hi]
  exact Sk_eq Ar ur w hw i 15 hi (by norm_num)

/-- The spelled entry is the recurrence with decay exp A from the entering state h0, at step 16 ch + g. -/
theorem kentry_eq (h0r : ℝ) (ch g : ℕ) (hch : ch < 16) (hg : g < 16) :
    kentry (Ar : EReal) (h0r : EReal) w ch g
      = Cert.Spec.erecFrom (Ideal.exp (Ar : EReal)) (h0r : EReal) (fun s => ((ur s : ℝ) : EReal)) (16 * ch + g) := by
  rw [Ideal.exp_coe, chunkedE Ar h0r ur ch g hch hg]
  unfold kentry
  rw [Sk_eq Ar ur w hw ch g hch hg, exp_lit Ar _ (g + 1) rfl]
  by_cases h : ch = 0
  · subst h
    rw [if_pos rfl, if_pos rfl, exp_chunk, add_zero]
  · rw [if_neg h, if_neg h, exp_chunk, Pk_eq Ar ur w hw (ch - 1) (by omega)]

/-- The last entry of the spelled scan over the chunks is the state after 256 steps from the zero state. -/
theorem Pk_last :
    Pk (Ar : EReal) w 15 = Cert.Spec.erecFrom (Ideal.exp (Ar : EReal)) 0 (fun s => ((ur s : ℝ) : EReal)) 255 := by
  rw [Ideal.exp_coe, Pk_eq Ar ur w hw 15 (by norm_num), PE_eq_rec (Real.exp Ar) ur 15 (by norm_num)]

end

/-- The two halves of the sequence joined: the run from step 256 on enters with the state reached at step 255. -/
theorem two_halves (a : EReal) (u : ℕ → EReal) (t : ℕ) :
    Cert.Spec.erec a u (256 + t) = Cert.Spec.erecFrom a (Cert.Spec.erec a u 255) (fun r => u (256 + r)) t :=
  Cert.Spec.erecFrom_shift a 0 u 255 t

/-- An entry of an array of reals at a natural-number time is a real (zero past the end). -/
theorem at3_real {T k : ℕ} (X : (⟨3, ![4, T, k]⟩ : Shape).Idx → EReal) (hX : ∀ i, ∃ r : ℝ, X i = (r : EReal))
    (b : Fin 4) (s : ℕ) (j : Fin k) : ∃ r : ℝ, Cert.Spec.at3 X b s j = (r : EReal) := by
  unfold Cert.Spec.at3
  split_ifs with h
  · exact hX _
  · exact ⟨0, EReal.coe_zero.symm⟩

/-- The spelled entry of either half is the specification's recurrence from the zero state at the global time
    256 my + 16 ch + g: in the first half the entering state is zero; in the second it is the last entry of the first half's
    scan over the chunks, which is the state after the first 256 steps. The inputs are u s = X[b, s, d] * B[b, s, n]. -/
theorem kentry_eq_erec (X : (⟨3, ![4, 512, 256]⟩ : Shape).Idx → EReal) (B : (⟨3, ![4, 512, 16]⟩ : Shape).Idx → EReal)
    (hX : ∀ i, ∃ r : ℝ, X i = (r : EReal)) (hB : ∀ i, ∃ r : ℝ, B i = (r : EReal))
    (b : Fin 4) (d : Fin 256) (n : Fin 16) (Ar : ℝ) (my : ℕ) (hmy : my < 2) (w w0 : ℕ → ℕ → EReal) (h0 : EReal)
    (hw : ∀ ch g, ch < 16 → g < 16 → w ch g
      = Cert.Spec.at3 X b (256 * my + 16 * ch + g) d * Cert.Spec.at3 B b (256 * my + 16 * ch + g) n)
    (hw0 : ∀ ch g, ch < 16 → g < 16 → w0 ch g = Cert.Spec.at3 X b (16 * ch + g) d * Cert.Spec.at3 B b (16 * ch + g) n)
    (hh0 : h0 = if my = 0 then 0 else Pk (Ar : EReal) w0 15)
    (ch g : ℕ) (hch : ch < 16) (hg : g < 16) :
    kentry (Ar : EReal) h0 w ch g
      = Cert.Spec.erec (Ideal.exp (Ar : EReal)) (fun s => Cert.Spec.at3 X b s d * Cert.Spec.at3 B b s n)
          (256 * my + 16 * ch + g) := by
  have hu : ∀ s, ∃ r : ℝ, Cert.Spec.at3 X b s d * Cert.Spec.at3 B b s n = (r : EReal) := by
    intro s
    obtain ⟨p, hp⟩ := at3_real X hX b s d
    obtain ⟨q, hq⟩ := at3_real B hB b s n
    exact ⟨p * q, by rw [hp, hq, EReal.coe_mul]⟩
  choose ur hur using hu
  have hfun : (fun s => Cert.Spec.at3 X b s d * Cert.Spec.at3 B b s n) = fun s => ((ur s : ℝ) : EReal) :=
    funext hur
  rw [hfun]
  have hmy' : my = 0 ∨ my = 1 := by omega
  rcases hmy' with rfl | rfl
  · rw [if_pos rfl] at hh0
    subst hh0
    have hw' : ∀ ch g, ch < 16 → g < 16 → w ch g = ((ur (16 * ch + g) : ℝ) : EReal) := by
      intro ch g hch hg
      rw [hw ch g hch hg, show 256 * 0 + 16 * ch + g = 16 * ch + g by omega, hur]
    have h := kentry_eq Ar ur w hw' 0 ch g hch hg
    rw [EReal.coe_zero] at h
    rw [h, show 256 * 0 + 16 * ch + g = 16 * ch + g by omega]
    rfl
  · rw [if_neg (by norm_num)] at hh0
    have hw0' : ∀ ch g, ch < 16 → g < 16 → w0 ch g = ((ur (16 * ch + g) : ℝ) : EReal) := by
      intro ch g hch hg
      rw [hw0 ch g hch hg, hur]
    have hw' : ∀ ch g, ch < 16 → g < 16 → w ch g = (((fun r => ur (256 + r)) (16 * ch + g) : ℝ) : EReal) := by
      intro ch g hch hg
      rw [hw ch g hch hg, show 256 * 1 + 16 * ch + g = 256 + (16 * ch + g) by omega, hur]
    have hlast : h0 = ((Cert.Lib.Scan.recFrom (Real.exp Ar) 0 ur 255 : ℝ) : EReal) := by
      rw [hh0, Pk_last Ar ur w0 hw0', Ideal.exp_coe]
      have e := erecFrom_coe (Real.exp Ar) 0 ur 255
      rw [EReal.coe_zero] at e
      exact e
    have h := kentry_eq Ar (fun r => ur (256 + r)) w hw' (Cert.Lib.Scan.recFrom (Real.exp Ar) 0 ur 255) ch g hch hg
    rw [← hlast] at h
    rw [h, show 256 * 1 + 16 * ch + g = 256 + (16 * ch + g) by omega, two_halves, hh0, Pk_last Ar ur w0 hw0']
    rfl

/-- The whole entry: the spelled entries of the sixteen state indices, each times C, sum to the specification's result at
    batch row b, global time 256 my + 16 ch + g and channel d. -/
theorem yentry_eq (X : (⟨3, ![4, 512, 256]⟩ : Shape).Idx → EReal) (A : (⟨2, ![256, 16]⟩ : Shape).Idx → EReal)
    (B C : (⟨3, ![4, 512, 16]⟩ : Shape).Idx → EReal)
    (hX : ∀ i, ∃ r : ℝ, X i = (r : EReal)) (hA : ∀ i, ∃ r : ℝ, A i = (r : EReal)) (hB : ∀ i, ∃ r : ℝ, B i = (r : EReal))
    (b : Fin 4) (d : Fin 256) (my : ℕ) (hmy : my < 2) (w w0 : Fin 16 → ℕ → ℕ → EReal) (h0 : Fin 16 → EReal)
    (hw : ∀ n ch g, ch < 16 → g < 16 → w n ch g
      = Cert.Spec.at3 X b (256 * my + 16 * ch + g) d * Cert.Spec.at3 B b (256 * my + 16 * ch + g) n)
    (hw0 : ∀ n ch g, ch < 16 → g < 16 → w0 n ch g
      = Cert.Spec.at3 X b (16 * ch + g) d * Cert.Spec.at3 B b (16 * ch + g) n)
    (hh0 : ∀ n, h0 n = if my = 0 then 0 else Pk (A (ix2 d n)) (w0 n) 15)
    (ch g : ℕ) (hch : ch < 16) (hg : g < 16) (ht : 256 * my + 16 * ch + g < 512) :
    ∑ n : Fin 16, kentry (A (ix2 d n)) (h0 n) (w n) ch g * C (ix3 b ⟨256 * my + 16 * ch + g, ht⟩ n)
      = Cert.Spec.yref X A B C b ⟨256 * my + 16 * ch + g, ht⟩ d := by
  unfold Cert.Spec.yref
  refine Finset.sum_congr rfl (fun n _ => ?_)
  obtain ⟨Ar, hAr⟩ := hA (ix2 d n)
  have hh0n := hh0 n
  rw [hAr] at hh0n ⊢
  rw [kentry_eq_erec X B hX hB b d n Ar my hmy (w n) (w0 n) (h0 n) (hw n) (hw0 n) hh0n ch g hch hg]

/-- info: 'Cert.KMath.yentry_eq' depends on axioms: [propext, Classical.choice, Quot.sound] -/
#guard_msgs in
#print axioms yentry_eq

end Cert.KMath

end
-- ==== Proof.KConsts.lean ====
/-
  The float literals the kernel spells, as the extended reals their words denote: zero and the powers of two
  1, 2, 4, 8 (the offsets of the doubling steps inside a chunk) and 16, 32, 64, 128 (sixteen times those offsets,
  the doubling steps across chunks).
-/
import Idealize.ShloMosaic.PureOps.Ideal

noncomputable section

namespace Cert.KConsts

open Idealize.ShloMosaic

theorem ofBits_zero : Ideal.ofBits .f32 0x00000000#32 = 0 := by
  simp [Ideal.ofBits, Ideal.ieee]
theorem ofBits_1 : Ideal.ofBits .f32 0x3F800000#32 = ((1 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_4 : Ideal.ofBits .f32 0x40800000#32 = ((4 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

end Cert.KConsts

end
-- ==== Proof.KBridge.lean ====
/-
  What a device's own result block holds is the recurrence's result. At batch row b (one of the device's own
  two), local time t = 16 ch + g and channel d, the block's entry is the sum over the sixteen state indices of
  (scanned state + exp (A (g + 1)) · state entering the chunk) · C, and the state entering the device is zero on the
  first half of the sequence and the first half's final state on the second.
-/
import proofs.«900482_g7700000000000483_dist_ssm_v7x_xy2x2_y_b4_s256_d256_n16_f32_1_alg».proof.Proof.KSlots
import proofs.«900482_g7700000000000483_dist_ssm_v7x_xy2x2_y_b4_s256_d256_n16_f32_1_alg».proof.Proof.KPieces
import proofs.«900482_g7700000000000483_dist_ssm_v7x_xy2x2_y_b4_s256_d256_n16_f32_1_alg».proof.Proof.KChunks
import proofs.«900482_g7700000000000483_dist_ssm_v7x_xy2x2_y_b4_s256_d256_n16_f32_1_alg».proof.Proof.KMath
import proofs.«900482_g7700000000000483_dist_ssm_v7x_xy2x2_y_b4_s256_d256_n16_f32_1_alg».proof.Proof.KConsts

noncomputable section

namespace Cert.KernelIdeal.KBridge

open Idealize.ShloMosaic Idealize.ShloMosaic.ValueIdx Idealize.SL.Sem Cert.KernelIdeal
open Cert.ScanBridge Cert.KMath Cert.Spec Cert.KernelIdeal.KLevels Cert.KernelIdeal.KChunks Cert.KernelIdeal.KSlots Cert.KernelIdeal.KPieces

variable (m : (ℓ : Loc nD τ sig) → Buf (Elt Ideal) ℓ)
variable (X : (⟨3, ![4, 512, 256]⟩ : Shape).Idx → EReal) (A : (⟨2, ![256, 16]⟩ : Shape).Idx → EReal)
variable (B C : (⟨3, ![4, 512, 16]⟩ : Shape).Idx → EReal)

/-- Device e's argument buffers hold its blocks of the whole arrays: the steps 256 (e % 2) .. of x, B, C, and A whole. -/
structure Agree (e : Dev nD) : Prop where
  hx : ∀ (b : Fin 4) (t d : Fin 256), KVal.argX m e (ix3 b t d) = X (ix3 b ⟨256 * (e.val % 2) + t.val, by have := t.isLt; omega⟩ d)
  ha : ∀ i, KVal.argA m e i = A i
  hb : ∀ (b : Fin 4) (t : Fin 256) (n : Fin 16), KVal.argB m e (ix3 b t n) = B (ix3 b ⟨256 * (e.val % 2) + t.val, by have := t.isLt; omega⟩ n)
  hc : ∀ (b : Fin 4) (t : Fin 256) (n : Fin 16), KVal.argC m e (ix3 b t n) = C (ix3 b ⟨256 * (e.val % 2) + t.val, by have := t.isLt; omega⟩ n)

/-- The inputs of the recurrence on device e at batch row b, channel d, state index n: chunk ch, position g. -/
def wseq (b : Fin 4) (d : Fin 256) (my : ℕ) (n : Fin 16) : ℕ → ℕ → EReal :=
  fun ch g => at3 X b (256 * my + 16 * ch + g) d * at3 B b (256 * my + 16 * ch + g) n

variable {m X A B C}

section
variable {e : Dev nD} (hag : Agree m X A B C e) (b : Fin 4) (hbe : b.val / 2 = e.val / 2)
include hag hbe

/-- The decay exponent as the body holds it. -/
theorem v22_eq (n : Fin 16) (d : Fin 256) : KVal.v22 m e (ix2 n d) = A (ix2 d n) := by
  rw [v22_apply, hag.ha]

/-- The whole store's entries are the recurrence's inputs. -/
theorem H0_eq (n ch g : Fin 16) (d : Fin 256) :
    View.canon (KVal.hL0 m e) (ix5 (⟨b.val % 2, by omega⟩ : Fin 2) n ch g d) = wseq X B b d (e.val % 2) n ch.val g.val := by
  have hrow : (⟨2 * (e.val / 2) + b.val % 2, by have := b.isLt; omega⟩ : Fin 4) = b := Fin.ext (by show 2 * (e.val / 2) + b.val % 2 = b.val; omega)
  have ht : 256 * (e.val % 2) + 16 * ch.val + g.val < 512 := by have := ch.isLt; have := g.isLt; omega
  rw [H0_apply, v24_apply, v27_apply, hrow, hag.hx, hag.hb]
  unfold wseq at3
  rw [dif_pos ht, dif_pos ht]
  have e1 : (⟨256 * (e.val % 2) + (⟨16 * ch.val + g.val, by have := ch.isLt; have := g.isLt; omega⟩ : Fin 256).val, by have := ch.isLt; have := g.isLt; omega⟩ : Fin 512)
      = ⟨256 * (e.val % 2) + 16 * ch.val + g.val, ht⟩ := Fin.ext (by show 256 * (e.val % 2) + (16 * ch.val + g.val) = 256 * (e.val % 2) + 16 * ch.val + g.val; omega)
  rw [e1]

end

section
variable {e : Dev nD} (hag : Agree m X A B C e) (b : Fin 4) (hbe : b.val / 2 = e.val / 2)
include hag hbe

/-- A step's factor, once its literal is read: exp of the exponent times the literal's value. -/
theorem efac_eq (w : BitVec 32) (k : ℝ) (hk : Ideal.ofBits .f32 w = (k : EReal)) (n : Fin 16) (d : Fin 256) :
    efac (KVal.v22 m e) w n d = Ideal.exp (A (ix2 d n) * (k : EReal)) := by
  unfold efac; rw [v22_eq hag b hbe, hk]

/-- The state buffer after its four steps is the scan inside each chunk. -/
theorem H4_eq (n ch g : Fin 16) (d : Fin 256) :
    View.canon (KVal.hL4 m e) (ix5 (⟨b.val % 2, by omega⟩ : Fin 2) n ch g d)
      = Sk (A (ix2 d n)) (wseq X B b d (e.val % 2) n) ch.val g.val := by
  rw [H4_scan]
  unfold Sk E1 E2 E4 E8
  rw [efac_eq hag b hbe _ 1 Cert.KConsts.ofBits_1, efac_eq hag b hbe _ 2 Cert.KConsts.ofBits_2,
    efac_eq hag b hbe _ 4 Cert.KConsts.ofBits_4, efac_eq hag b hbe _ 8 Cert.KConsts.ofBits_8]
  exact scan16E_congr _ _ _ _ _ _ (fun i hi => by rw [gseq_lt _ _ _ _ _ i hi, H0_eq hag b hbe n ch ⟨i, hi⟩ d]) g.val g.isLt

/-- The scan across chunks gives the state at each chunk's end from a zero start. -/
theorem P16_eq' (n ch : Fin 16) (d : Fin 256) :
    P16 m e (⟨b.val % 2, by omega⟩ : Fin 2) n ch d = Pk (A (ix2 d n)) (wseq X B b d (e.val % 2) n) ch.val := by
  rw [P16_eq]
  unfold Pk F16 F32 F64 F128
  rw [efac_eq hag b hbe _ 16 Cert.KConsts.ofBits_16, efac_eq hag b hbe _ 32 Cert.KConsts.ofBits_32,
    efac_eq hag b hbe _ 64 Cert.KConsts.ofBits_64, efac_eq hag b hbe _ 128 Cert.KConsts.ofBits_128]
  exact scan16E_congr _ _ _ _ _ _ (fun i hi => by rw [dif_pos hi, if_pos hi, H4_eq hag b hbe n ⟨i, hi⟩ 15 d]; rfl) ch.val ch.isLt

end

/-- One entry of a device's own result block is the recurrence's result there. -/
theorem own_block {e : Dev nD} (hag : Agree m X A B C e) (hag0 : Agree m X A B C (KVal.ypeer e))
    (hX : ∀ i, ∃ r : ℝ, X i = (r : EReal)) (hA : ∀ i, ∃ r : ℝ, A i = (r : EReal)) (hB : ∀ i, ∃ r : ℝ, B i = (r : EReal))
    (b : Fin 4) (hbe : b.val / 2 = e.val / 2) (t d : Fin 256) :
    KVal.yblk m e (⟨4 * (b.val % 2) + t.val / 64, by have := t.isLt; omega⟩ : Fin 8) (ix3 (0 : Fin 1) (⟨t.val % 64, by omega⟩ : Fin 64) d)
      = yref X A B C b ⟨256 * (e.val % 2) + t.val, by have := t.isLt; omega⟩ d := by
  have hch : t.val / 16 < 16 := by have := t.isLt; omega
  have hg : t.val % 16 < 16 := by omega
  have ht : 256 * (e.val % 2) + 16 * (t.val / 16) + t.val % 16 < 512 := by have := t.isLt; omega
  have hbe0 : b.val / 2 = (KVal.ypeer e).val / 2 := by rw [KVal.ypeer_div]; exact hbe
  have hrow : (⟨2 * (e.val / 2) + b.val % 2, by have := b.isLt; omega⟩ : Fin 4) = b := Fin.ext (by show 2 * (e.val / 2) + b.val % 2 = b.val; omega)
  have key := yentry_eq X A B C hX hA hB b d (e.val % 2) (by omega)
    (fun n => wseq X B b d (e.val % 2) n) (fun n => wseq X B b d 0 n)
    (fun n => if e.val % 2 = 0 then 0 else Pk (A (ix2 d n)) (wseq X B b d 0 n) 15)
    (fun n ch g _ _ => rfl) (fun n ch g _ _ => by simp [wseq]) (fun n => rfl) (t.val / 16) (t.val % 16) hch hg ht
  have etime : (⟨256 * (e.val % 2) + 16 * (t.val / 16) + t.val % 16, ht⟩ : Fin 512) = ⟨256 * (e.val % 2) + t.val, by have := t.isLt; omega⟩ :=
    Fin.ext (by show 256 * (e.val % 2) + 16 * (t.val / 16) + t.val % 16 = 256 * (e.val % 2) + t.val; omega)
  rw [etime] at key
  rw [← key, yblk_apply]
  unfold blkForm
  have ebl : (⟨(⟨4 * (b.val % 2) + t.val / 64, by have := t.isLt; omega⟩ : Fin 8).val / 4, by have := t.isLt; show (4 * (b.val % 2) + t.val / 64) / 4 < 2; omega⟩ : Fin 2) = ⟨b.val % 2, by omega⟩ :=
    Fin.ext (by have := t.isLt; show (4 * (b.val % 2) + t.val / 64) / 4 = b.val % 2; omega)
  have ech : rowCh (⟨(⟨4 * (b.val % 2) + t.val / 64, by have := t.isLt; omega⟩ : Fin 8).val % 4, by omega⟩ : Fin 4) (⟨t.val % 64, by omega⟩ : Fin 64) = ⟨t.val / 16, hch⟩ :=
    Fin.ext (by have := t.isLt; show 4 * ((4 * (b.val % 2) + t.val / 64) % 4) + t.val % 64 / 16 = t.val / 16; omega)
  have eg : rowG (⟨t.val % 64, by omega⟩ : Fin 64) = ⟨t.val % 16, hg⟩ := Fin.ext (by show t.val % 64 % 16 = t.val % 16; omega)
  rw [ebl, ech, eg]
  refine Finset.sum_congr rfl fun n _ => ?_
  -- the C factor
  have eC : KVal.v140 m e (ix4 (⟨b.val % 2, by omega⟩ : Fin 2) n ⟨t.val / 16, hch⟩ ⟨t.val % 16, hg⟩) = C (ix3 b ⟨256 * (e.val % 2) + t.val, by have := t.isLt; omega⟩ n) := by
    unfold KVal.v140
    rw [pay19_apply, v137_apply, hrow, hag.hc]
    exact congrArg C (congrArg (fun s => ix3 b s n) (Fin.ext (by show 256 * (e.val % 2) + (16 * (t.val / 16) + t.val % 16) = 256 * (e.val % 2) + t.val; omega)))
  -- the scanned state
  have eS : (if (⟨4 * (b.val % 2) + t.val / 64, by have := t.isLt; omega⟩ : Fin 8).val < 4 then KVal.slab0 m e else KVal.slab1 m e) (ix5 (0 : Fin 1) n ⟨t.val / 16, hch⟩ ⟨t.val % 16, hg⟩ d)
      = Sk (A (ix2 d n)) (wseq X B b d (e.val % 2) n) (t.val / 16) (t.val % 16) := by
    rw [← H4_eq hag b hbe n ⟨t.val / 16, hch⟩ ⟨t.val % 16, hg⟩ d]
    by_cases h4 : (⟨4 * (b.val % 2) + t.val / 64, by have := t.isLt; omega⟩ : Fin 8).val < 4
    · rw [if_pos h4, slab0_apply]
      have : (⟨b.val % 2, by omega⟩ : Fin 2) = 0 := Fin.ext (by have := t.isLt; have h4' : 4 * (b.val % 2) + t.val / 64 < 4 := h4; show b.val % 2 = 0; omega)
      rw [this]
    · rw [if_neg h4, slab1_apply]
      have : (⟨b.val % 2, by omega⟩ : Fin 2) = 1 := Fin.ext (by have := t.isLt; have h4' : ¬ 4 * (b.val % 2) + t.val / 64 < 4 := h4; show b.val % 2 = 1; omega)
      rw [this]
  -- the position's factor
  have eP : KVal.v148 m e (ix3 n ⟨t.val % 16, hg⟩ d) = Ideal.exp (A (ix2 d n) * (((t.val % 16 + 1 : ℕ) : ℝ) : EReal)) := by
    unfold KVal.v148
    rw [pay20_apply, v22_eq hag b hbe]
  -- the state entering the device
  have eH : KVal.v160 m e (ix3 (⟨b.val % 2, by omega⟩ : Fin 2) n d)
      = (if e.val % 2 = 0 then 0 else Pk (A (ix2 d n)) (wseq X B b d 0 n) 15) := by
    rw [v160_apply]
    by_cases h0 : e.val % 2 = 0
    · rw [if_pos h0, if_pos h0, Cert.KConsts.ofBits_zero]
    · rw [if_neg h0, if_neg h0, hsendV_apply, P16_eq' hag0 b hbe0 n 15 d]
      have : (KVal.ypeer e).val % 2 = 0 := by rw [KVal.ypeer_mod]; omega
      rw [this]; rfl
  -- the state entering the chunk
  have eM : KVal.v170 m e (ix4 (⟨b.val % 2, by omega⟩ : Fin 2) n ⟨t.val / 16, hch⟩ d)
      = (if t.val / 16 = 0 then Ideal.exp ((A (ix2 d n) * (((0 : ℕ) : ℝ) : EReal)) * ((16 : ℝ) : EReal)) * (if e.val % 2 = 0 then 0 else Pk (A (ix2 d n)) (wseq X B b d 0 n) 15)
         else Ideal.exp ((A (ix2 d n) * (((t.val / 16 : ℕ) : ℝ) : EReal)) * ((16 : ℝ) : EReal)) * (if e.val % 2 = 0 then 0 else Pk (A (ix2 d n)) (wseq X B b d 0 n) 15)
              + Pk (A (ix2 d n)) (wseq X B b d (e.val % 2) n) (t.val / 16 - 1)) := by
    unfold KVal.v170
    rw [pay21_apply, eH]
    unfold chDecay
    rw [v22_eq hag b hbe, Cert.KConsts.ofBits_16]
    by_cases hz : t.val / 16 = 0
    · rw [if_pos (show (⟨t.val / 16, hch⟩ : Fin 16).val = 0 from hz), if_pos hz]
      show Ideal.exp (A (ix2 d n) * (((t.val / 16 : ℕ) : ℝ) : EReal) * ((16 : ℝ) : EReal)) * _ = _
      rw [hz]
    · rw [if_neg (show ¬ (⟨t.val / 16, hch⟩ : Fin 16).val = 0 from hz), if_neg hz]
      congr 1
      exact P16_eq' hag b hbe n ⟨t.val / 16 - 1, by omega⟩ d
  rw [eC, eS, eP, eM]
  rfl

end Cert.KernelIdeal.KBridge

end
-- ==== Proof.KLayout.lean ====
/-
  How a device's blocks sit in the whole arrays: the sequence axis (512 steps) is cut in two along the mesh's
  second axis, so device c (c = 2 * mx + my) holds the steps 256 * my .. 256 * my + 255 of every batch row.
-/
import Idealize.ShloMosaic.Lib.Layout
import Idealize.ShloMosaic.Lib.ValueIdx

noncomputable section

namespace Cert.KLayout

open Idealize.ShloMosaic Idealize.ShloMosaic.ValueIdx Idealize.ShloMosaic.Layout

/-- Entry (b, t, j) of device c's block of an array [4, 512, k] cut along the sequence axis is entry
    (b, 256 * (c % 2) + t, j) of the whole array. -/
theorem block_apply {α : Type} (k : ℕ) (c : Fin 4) (v : (⟨3, ![4, 512, k]⟩ : Shape).Idx → α)
    (h : TilesN ⟨3, ![4, 256, k]⟩ ⟨3, ![4, 512, k]⟩ (fun b => cutSize [2, 2] ((![[], [1], []] : Fin 3 → List ℕ) b)))
    (b : Fin 4) (t : Fin 256) (j : Fin k) :
    blockN ⟨3, ![4, 256, k]⟩ ⟨3, ![4, 512, k]⟩ (meshBlock [2, 2] ![[], [1], []] c) v h (ix3 b t j)
      = v (ix3 b ⟨256 * (c.val % 2) + t.val, by have := t.isLt; omega⟩ j) := by
  rw [blockN_apply]
  refine congrArg v (funext fun a => Fin.ext ?_)
  rw [TilesN.idx_val]
  match a with
  | ⟨0, _⟩ => show 0 * 4 + b.val = b.val; omega
  | ⟨1, _⟩ =>
    show (meshLin [2, 2] c.val [1]) * 256 + t.val = 256 * (c.val % 2) + t.val
    have : meshLin [2, 2] c.val [1] = c.val % 2 := by
      simp [meshLin, meshCoord, cutSize]
    rw [this]; omega
  | ⟨2, _⟩ => show 0 * k + j.val = j.val; omega

end Cert.KLayout

end
-- ==== Proof.FiniteInputs.lean ====
/-
  From the finiteness precondition to plain reals. The precondition is the conjunction, over the four input arrays,
  of "every entry e has |e| < +∞", each read as an and-reduction of comparison words from the word 1. On the extended
  reals |e| is max e (-e), which is +∞ at both infinities, so a comparison word 1 says that e is the coercion of a real.
-/
import proofs.«900482_g7700000000000483_dist_ssm_v7x_xy2x2_y_b4_s256_d256_n16_f32_1_alg».proof.Pre_finite_inputs_Kernel
import proofs.«900482_g7700000000000483_dist_ssm_v7x_xy2x2_y_b4_s256_d256_n16_f32_1_alg».proof.Proof.Gen.Pre_finite_inputs_Kernel
import Idealize.ShloMosaic.Lib.ReduceAll
import Idealize.ShloMosaic.Lib.IdealHost
import Idealize.ShloMosaic.Lib.ValueIdx
import Idealize.ShloMosaic.PureOps.Ideal

noncomputable section

namespace Cert.FiniteInputs

open Idealize.ShloMosaic Idealize.ShloMosaic.ValueIdx Cert.Pre_finite_inputs_Kernel

/-- A shape of rank zero has exactly one index. -/
instance : Subsingleton S_.Idx := ⟨fun a b => funext fun d => d.elim0⟩

/-- The single-precision pattern 0x7F800000 denotes +∞. -/
theorem ofBits_inf : Ideal.ofBits .f32 0x7F800000#32 = (⊤ : EReal) := by
  simp [Ideal.ofBits, Ideal.ieee]

/-- An extended real whose absolute value max e (-e) compares below +∞ is the coercion of a real: at either
    infinity the absolute value is +∞ itself. -/
theorem real_of_abs_lt_top (e : EReal) (h : Ideal.cmp .olt (max e (-e)) ⊤ = 1#1) : ∃ r : ℝ, e = (r : EReal) := by
  induction e using EReal.rec with
  | bot => simp [Ideal.cmp] at h
  | coe r => exact ⟨r, rfl⟩
  | top => simp [Ideal.cmp] at h

/-- One array's clause: if the and-reduction over all axes of the words |x i| < +∞ is 1 then every entry is a real. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant S_ .f32 0x7F800000#32)))
          init hr hu ix0 = 1#1) (i : s.Idx) : ∃ r : ℝ, x i = (r : EReal) := by
  have h := Host.reduce_andi_all _ init hr hu ix0 e i
  rw [cmpf_apply, broadcastInDim_scalar_apply, constant_apply, ofBits_inf] at h
  exact real_of_abs_lt_top (x i) h

/-- The precondition holds only if every entry of each of the four arrays is the coercion of a real. -/
theorem finite_inputs (x : FVec Ideal S4x256x256 .f32) (A : FVec Ideal S256x16 .f32)
    (B C : FVec Ideal S4x256x16 .f32)
    (h : Cert.Pre_finite_inputs_Kernel.fn (F := Ideal) x A B C = (fun _ => 1#1)) :
    (∀ i, ∃ r : ℝ, x i = (r : EReal)) ∧ (∀ i, ∃ r : ℝ, A i = (r : EReal))
      ∧ (∀ i, ∃ r : ℝ, B i = (r : EReal)) ∧ (∀ i, ∃ r : ℝ, C i = (r : EReal)) := by
  have h0 := congrFun h ix0
  dsimp only [Cert.Pre_finite_inputs_Kernel.fn, Cert.Pre_finite_inputs_Kernel.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_real x _ _ _ _ h1, all_real A _ _ _ _ h2, all_real B _ _ _ _ h3, all_real C _ _ _ _ h4⟩

/-- info: 'Cert.FiniteInputs.finite_inputs' depends on axioms: [propext, Classical.choice, Quot.sound] -/
#guard_msgs in
#print axioms finite_inputs

end Cert.FiniteInputs

end
-- ==== Proof.KFinal.lean ====
/-
  Every device's result buffer is its block of the recurrence's result: its own two batch rows it computed, the
  other two it received from the device with the same half of the sequence, which computed them the same way.
-/
import proofs.«900482_g7700000000000483_dist_ssm_v7x_xy2x2_y_b4_s256_d256_n16_f32_1_alg».proof.Defs
import proofs.«900482_g7700000000000483_dist_ssm_v7x_xy2x2_y_b4_s256_d256_n16_f32_1_alg».proof.Proof.Gen.Pre_finite_inputs_Kernel
import proofs.«900482_g7700000000000483_dist_ssm_v7x_xy2x2_y_b4_s256_d256_n16_f32_1_alg».proof.Proof.KBridge
import proofs.«900482_g7700000000000483_dist_ssm_v7x_xy2x2_y_b4_s256_d256_n16_f32_1_alg».proof.Proof.KLayout
import proofs.«900482_g7700000000000483_dist_ssm_v7x_xy2x2_y_b4_s256_d256_n16_f32_1_alg».proof.Proof.FiniteInputs

noncomputable section

namespace Cert.KernelIdeal.KFinal

open Idealize.ShloMosaic Idealize.ShloMosaic.ValueIdx Idealize.ShloMosaic.Layout Idealize.SL.Sem Cert.KernelIdeal
open Cert.Spec Cert.KernelIdeal.KBridge Cert.KernelIdeal.KSlots Cert.KernelIdeal.KPieces

/-- An array [4, 512, k] all of whose devices' blocks hold reals holds reals. -/
theorem whole_real (k : ℕ) (v : (⟨3, ![4, 512, k]⟩ : Shape).Idx → EReal)
    (h : TilesN ⟨3, ![4, 256, k]⟩ ⟨3, ![4, 512, k]⟩ (fun b => cutSize [2, 2] ((![[], [1], []] : Fin 3 → List ℕ) b)))
    (blk : ∀ (c : Fin 4) (i : (⟨3, ![4, 256, k]⟩ : Shape).Idx), ∃ r : ℝ,
      blockN ⟨3, ![4, 256, k]⟩ ⟨3, ![4, 512, k]⟩ (meshBlock [2, 2] ![[], [1], []] c) v h i = (r : EReal)) :
    ∀ i, ∃ r : ℝ, v i = (r : EReal) := by
  intro i
  rw [eq_ix3 i]
  have hT := (i 1).isLt
  have hT' : (i 1).val < 512 := hT
  obtain ⟨r, hr⟩ := blk ⟨(i 1).val / 256, by omega⟩ (ix3 (i 0) ⟨(i 1).val % 256, by omega⟩ (i 2))
  have hr' := (Cert.KLayout.block_apply k ⟨(i 1).val / 256, by omega⟩ v h (i 0) ⟨(i 1).val % 256, by omega⟩ (i 2)).symm.trans hr
  refine ⟨r, ?_⟩
  rw [← hr']
  refine congrArg v (congrArg (fun s => ix3 (i 0) s (i 2)) (Fin.ext ?_))
  show (i 1).val = 256 * ((i 1).val / 256 % 2) + (i 1).val % 256
  omega

variable (m : (ℓ : Loc nD τ sig) → Buf (Elt Ideal) ℓ)
variable (X : (⟨3, ![4, 512, 256]⟩ : Shape).Idx → EReal) (A : (⟨2, ![256, 16]⟩ : Shape).Idx → EReal)
variable (B C : (⟨3, ![4, 512, 16]⟩ : Shape).Idx → EReal)

/-- Every device's output buffer is its block of any array that holds the recurrence's result. -/
theorem out_block (hag : ∀ e, Agree m X A B C e)
    (hX : ∀ i, ∃ r : ℝ, X i = (r : EReal)) (hA : ∀ i, ∃ r : ℝ, A i = (r : EReal)) (hB : ∀ i, ∃ r : ℝ, B i = (r : EReal))
    (V0 : (⟨3, ![4, 512, 256]⟩ : Shape).Idx → EReal)
    (hV0 : ∀ (b : Fin 4) (t : Fin 512) (d : Fin 256), V0 (ix3 b t d) = yref X A B C b t d)
    (h : TilesN ⟨3, ![4, 256, 256]⟩ ⟨3, ![4, 512, 256]⟩ (fun b => cutSize [2, 2] ((![[], [1], []] : Fin 3 → List ℕ) b)))
    (c : Dev nD) :
    KVal.outV m c = blockN ⟨3, ![4, 256, 256]⟩ ⟨3, ![4, 512, 256]⟩ (meshBlock [2, 2] ![[], [1], []] c) V0 h := by
  funext i
  obtain ⟨b, t, d, rfl⟩ : ∃ (b : Fin 4) (t : Fin 256) (d : Fin 256), i = ix3 b t d := ⟨i 0, i 1, i 2, eq_ix3 i⟩
  refine Eq.trans ?_ ((Cert.KLayout.block_apply 256 c V0 h b t d).trans (hV0 _ _ _)).symm
  rw [outV_apply]
  by_cases hown : b.val / 2 = c.val / 2
  · rw [if_pos hown]
    exact own_block (hag c) (hag (KVal.ypeer c)) hX hA hB b hown t d
  · rw [if_neg hown, obufV_apply, yblk16_apply]
    have hb2 : b.val / 2 = (KVal.xpeer c).val / 2 := by
      rw [KVal.xpeer_div]; have hb4 : b.val < 4 := b.isLt; have hc4 : c.val < 4 := c.isLt; omega
    have hmod : (KVal.xpeer c).val % 2 = c.val % 2 := KVal.xpeer_mod c
    have key := own_block (hag (KVal.xpeer c)) (hag (KVal.ypeer (KVal.xpeer c))) hX hA hB b hb2 t d
    rw [show (⟨256 * ((KVal.xpeer c).val % 2) + t.val, by have := t.isLt; omega⟩ : Fin 512) = ⟨256 * (c.val % 2) + t.val, by have := t.isLt; omega⟩ from Fin.ext (by show 256 * ((KVal.xpeer c).val % 2) + t.val = _; rw [hmod])] at key
    exact key

/-- The claim's agreement hypotheses, device by device, in the form the bridge uses. -/
theorem agree_of
    (h0 : ∀ c : Dev nD, m ((c.tc : Thread nD τ).loc main_arg0) = blockN ⟨3, ![4, 256, 256]⟩ ⟨3, ![4, 512, 256]⟩ (meshBlock [2, 2] ![[], [1], []] c) X)
    (h1 : ∀ c : Dev nD, m ((c.tc : Thread nD τ).loc main_arg1) = A)
    (h2 : ∀ c : Dev nD, m ((c.tc : Thread nD τ).loc main_arg2) = blockN ⟨3, ![4, 256, 16]⟩ ⟨3, ![4, 512, 16]⟩ (meshBlock [2, 2] ![[], [1], []] c) B)
    (h3 : ∀ c : Dev nD, m ((c.tc : Thread nD τ).loc main_arg3) = blockN ⟨3, ![4, 256, 16]⟩ ⟨3, ![4, 512, 16]⟩ (meshBlock [2, 2] ![[], [1], []] c) C)
    (e : Dev nD) : Agree m X A B C e where
  hx b t d := by unfold KVal.argX; rw [h0 e]; exact Cert.KLayout.block_apply 256 e X _ b t d
  ha i := by unfold KVal.argA; rw [h1 e]
  hb b t n := by unfold KVal.argB; rw [h2 e]; exact Cert.KLayout.block_apply 16 e B _ b t n
  hc b t n := by unfold KVal.argC; rw [h3 e]; exact Cert.KLayout.block_apply 16 e C _ b t n

/-- Under the precondition on every device's blocks, the whole arrays hold reals. -/
theorem reals_of_pre
    (hpre : ∀ c : Dev nD, Cert.Pre_finite_inputs_Kernel.fn (F := Ideal)
      (m ((c.tc : Thread nD τ).loc main_arg0)) (m ((c.tc : Thread nD τ).loc main_arg1))
      (m ((c.tc : Thread nD τ).loc main_arg2)) (m ((c.tc : Thread nD τ).loc main_arg3)) = (fun _ => 1#1))
    (h0 : ∀ c : Dev nD, m ((c.tc : Thread nD τ).loc main_arg0) = blockN ⟨3, ![4, 256, 256]⟩ ⟨3, ![4, 512, 256]⟩ (meshBlock [2, 2] ![[], [1], []] c) X)
    (h1 : ∀ c : Dev nD, m ((c.tc : Thread nD τ).loc main_arg1) = A)
    (h2 : ∀ c : Dev nD, m ((c.tc : Thread nD τ).loc main_arg2) = blockN ⟨3, ![4, 256, 16]⟩ ⟨3, ![4, 512, 16]⟩ (meshBlock [2, 2] ![[], [1], []] c) B) :
    (∀ i, ∃ r : ℝ, X i = (r : EReal)) ∧ (∀ i, ∃ r : ℝ, A i = (r : EReal)) ∧ (∀ i, ∃ r : ℝ, B i = (r : EReal)) := by
  refine ⟨whole_real 256 X (by decide) (fun c i => ?_), ?_, whole_real 16 B (by decide) (fun c i => ?_)⟩
  · rw [← h0 c]; exact (Cert.FiniteInputs.finite_inputs _ _ _ _ (hpre c)).1 i
  · intro i; rw [← h1 0]; exact (Cert.FiniteInputs.finite_inputs _ _ _ _ (hpre 0)).2.1 i
  · rw [← h2 c]; exact (Cert.FiniteInputs.finite_inputs _ _ _ _ (hpre c)).2.2.1 i

end Cert.KernelIdeal.KFinal

end
-- ==== Proof.KAlg.lean ====
/-
  The idealized kernel's run with its result named: every device's result buffer ends as its block of any array
  that holds the recurrence's result on the whole arrays, and the arguments end unchanged.
-/
import proofs.«900482_g7700000000000483_dist_ssm_v7x_xy2x2_y_b4_s256_d256_n16_f32_1_alg».proof.Proof.KLaunch
import proofs.«900482_g7700000000000483_dist_ssm_v7x_xy2x2_y_b4_s256_d256_n16_f32_1_alg».proof.Proof.KFinal

noncomputable section

namespace Cert.KernelIdeal.KAlg

open Idealize.ShloMosaic Idealize.ShloMosaic.TcCoe Idealize.ShloMosaic.ValueIdx Idealize.ShloMosaic.Layout Idealize.SL.Sem Cert.KernelIdeal

/-- The frame of the idealized kernel: its run with the result dropped. -/
theorem frame_pi (hbody : ∀ m, KProto.SoundBody (F := Ideal) m) :
    Cert.frame_KernelIdeal (hKernelIdeal := Cert.KernelIdeal.Gen.facts) (hPre_finite_inputs_Kernel := Cert.Pre_finite_inputs_Kernel.Gen.facts) :=
  fun m ρ _ => (θ_run (defs (F := Ideal)) _ _).mono (fun _ h c => (h c).2) (KLaunch.run_main m ρ (hbody m))

/-- The kernel's half of the value claim. -/
theorem run_block (hbody : ∀ m, KProto.SoundBody (F := Ideal) m)
    (m : (ℓ : Loc nD τ sig) → Buf (Elt Ideal) ℓ) (ρ : Dev nD → PrngReg)
    (X : (⟨3, ![4, 512, 256]⟩ : Shape).Idx → EReal) (A : (⟨2, ![256, 16]⟩ : Shape).Idx → EReal)
    (B C : (⟨3, ![4, 512, 16]⟩ : Shape).Idx → EReal)
    (hpre : Cert.Pre_KernelIdeal (hPre_finite_inputs_Kernel := Cert.Pre_finite_inputs_Kernel.Gen.facts) m)
    (h0 : ∀ c : Dev nD, m ((c.tc : Thread nD τ).loc main_arg0) = blockN ⟨3, ![4, 256, 256]⟩ ⟨3, ![4, 512, 256]⟩ (meshBlock [2, 2] ![[], [1], []] c) X)
    (h1 : ∀ c : Dev nD, m ((c.tc : Thread nD τ).loc main_arg1) = A)
    (h2 : ∀ c : Dev nD, m ((c.tc : Thread nD τ).loc main_arg2) = blockN ⟨3, ![4, 256, 16]⟩ ⟨3, ![4, 512, 16]⟩ (meshBlock [2, 2] ![[], [1], []] c) B)
    (h3 : ∀ c : Dev nD, m ((c.tc : Thread nD τ).loc main_arg3) = blockN ⟨3, ![4, 256, 16]⟩ ⟨3, ![4, 512, 16]⟩ (meshBlock [2, 2] ![[], [1], []] c) C)
    (V0 : (⟨3, ![4, 512, 256]⟩ : Shape).Idx → EReal)
    (hV0 : ∀ (b : Fin 4) (t : Fin 512) (d : Fin 256), V0 (ix3 b t d) = Cert.Spec.yref X A B C b t d) :
    θ_run (defs (F := Ideal)) (onTc (τ := τ) (main (F := Ideal))) ⟨m, fun _ => 0, ρ⟩ (fun r => ∀ c : Dev nD,
      r.2.mem ((c.tc : Thread nD τ).loc main_v1) = blockN ⟨3, ![4, 256, 256]⟩ ⟨3, ![4, 512, 256]⟩ (meshBlock [2, 2] ![[], [1], []] c) V0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  obtain ⟨hX, hA, hB⟩ := KFinal.reals_of_pre m X A B hpre h0 h1 h2
  refine (θ_run (defs (F := Ideal)) _ _).mono (fun _ h c => ⟨(h c).1.trans ?_, (h c).2⟩) (KLaunch.run_main m ρ (hbody m))
  exact KFinal.out_block m X A B C (KFinal.agree_of m X A B C h0 h1 h2 h3) hX hA hB V0 hV0 (by decide) c

end Cert.KernelIdeal.KAlg

end
-- ==== Proof.KBodyGeo.lean ====
/-
  The eight slots of a [2, 256, 256] half-precision buffer (rows 64 q .. 64 q + 63 of batch row b, s = 4 b + q) are
  pairwise disjoint and cover the buffer: a buffer held whole is its eight slots held one by one, and back.
-/
import proofs.«900482_g7700000000000483_dist_ssm_v7x_xy2x2_y_b4_s256_d256_n16_f32_1_alg».proof.Proof.KVal
import proofs.«900482_g7700000000000483_dist_ssm_v7x_xy2x2_y_b4_s256_d256_n16_f32_1_alg».proof.Proof.KProto
import Idealize.ShloMosaic.Lib.Exec
import Idealize.ShloMosaic.Lib.Ring

set_option maxRecDepth 65536

noncomputable section
namespace Cert.KernelIdeal.KBodyGeo

open Cert.KernelIdeal Cert.KernelIdeal.Gen
open Idealize.ShloMosaic Idealize.ShloMosaic.TcCoe Idealize.ShloMosaic.Tactic
open Idealize.SL Idealize.SL.RA Idealize.SL.BI
open Idealize.SL.BI (bigSep bigSepL bigSep_univ_eq_bigSepL)
open scoped Idealize.SL.BI
open Idealize.SL.BI.BIBase Idealize.SL.BI.Laws Idealize.SL.ProofMode Idealize.SL.Sem
open Cert.KernelIdeal.KProto (UU obM ibM)

variable {F : FTy → Type} [FloatOps F]

local notation "𝕄" => MT nD τ sig Unit (Elt F) ℕ UU ℕ

/-- Two different slots share no element. -/
theorem slot_disj : ∀ s s' : Fin 8, s ≠ s' → LoadRect.disj (KVal.slot s) (KVal.slot s').toLoadRect = true := by decide

/-- Every element of the buffer lies in some slot. -/
theorem slot_cover (y : S2x256x256.Idx) : ∃ s : Fin 8, y ∈ (KVal.slot s).set := by
  have h := View.cover_of_tiledL (Val := fun _ => Unit) (e := .bf16)
    [⟨KVal.slot 0, fun _ => ()⟩, ⟨KVal.slot 1, fun _ => ()⟩, ⟨KVal.slot 2, fun _ => ()⟩, ⟨KVal.slot 3, fun _ => ()⟩,
     ⟨KVal.slot 4, fun _ => ()⟩, ⟨KVal.slot 5, fun _ => ()⟩, ⟨KVal.slot 6, fun _ => ()⟩, ⟨KVal.slot 7, fun _ => ()⟩]
    S1x64x256.size (by decide) y
  obtain ⟨p, hp, hy⟩ := h
  simp only [List.mem_cons, List.mem_singleton, List.not_mem_nil, or_false] at hp
  rcases hp with rfl | rfl | rfl | rfl | rfl | rfl | rfl | rfl
  exacts [⟨0, hy⟩, ⟨1, hy⟩, ⟨2, hy⟩, ⟨3, hy⟩, ⟨4, hy⟩, ⟨5, hy⟩, ⟨6, hy⟩, ⟨7, hy⟩]

/-- The elements of slot s, through the copy's own view. -/
def obI : Fin 8 → Finset S2x256x256.Idx
  | 0 => KProto.obS0.view.set
  | 1 => KProto.obS1.view.set
  | 2 => KProto.obS2.view.set
  | 3 => KProto.obS3.view.set
  | 4 => KProto.obS4.view.set
  | 5 => KProto.obS5.view.set
  | 6 => KProto.obS6.view.set
  | 7 => KProto.obS7.view.set

theorem obI_eq (s : Fin 8) : obI s = (KVal.slot s).set := by
  fin_cases s <;> exact (View.set_reshape _ _).trans (View.set_slice_whole _ _)

theorem obI_disj (s s' : Fin 8) (h : s ≠ s') : Disjoint (obI s) (obI s') := by
  have hd := View.disjoint_slice_of_disj obM.view _ _ (slot_disj s s' h)
  rw [View.set_slice_whole, View.set_slice_whole] at hd
  rw [obI_eq, obI_eq]; exact hd

theorem obI_cover : Finset.univ.biUnion obI = Finset.univ :=
  Finset.eq_univ_of_forall fun y => by
    obtain ⟨s, hs⟩ := slot_cover y
    exact Finset.mem_biUnion.mpr ⟨s, Finset.mem_univ _, by rw [obI_eq]; exact hs⟩

/-- The buffer held whole is its eight slots held one by one, at the same contents. -/
theorem cut_ob (c : Dev nD) (f : Buf (Elt F) (obM.view.loc (c : Thread nD τ))) :
    (obM.view.loc (c : Thread nD τ) ↦{fullShare} f : sProp 𝕄) =
      iprop((KProto.obS0.view.loc (c : Thread nD τ) ↦[KProto.obS0.view.set]{fullShare} f)
      ∗ (KProto.obS1.view.loc (c : Thread nD τ) ↦[KProto.obS1.view.set]{fullShare} f)
      ∗ (KProto.obS2.view.loc (c : Thread nD τ) ↦[KProto.obS2.view.set]{fullShare} f)
      ∗ (KProto.obS3.view.loc (c : Thread nD τ) ↦[KProto.obS3.view.set]{fullShare} f)
      ∗ (KProto.obS4.view.loc (c : Thread nD τ) ↦[KProto.obS4.view.set]{fullShare} f)
      ∗ (KProto.obS5.view.loc (c : Thread nD τ) ↦[KProto.obS5.view.set]{fullShare} f)
      ∗ (KProto.obS6.view.loc (c : Thread nD τ) ↦[KProto.obS6.view.set]{fullShare} f)
      ∗ (KProto.obS7.view.loc (c : Thread nD τ) ↦[KProto.obS7.view.set]{fullShare} f)) := by
  rw [Ring.pointsTo_blocks (ℓ := obM.view.loc (c : Thread nD τ)) obI obI_disj obI_cover f,
    bigSep_univ_eq_bigSepL [0, 1, 2, 3, 4, 5, 6, 7] (by decide) (by decide)]
  rfl

/-- Eight slots, each at some contents, are the buffer whole at some contents. -/
theorem join_ob (c : Dev nD) (f₀ : Buf (Elt F) (obM.view.loc (c : Thread nD τ))) :
    iprop((∃ f : Buf (Elt F) (KProto.obS0.view.loc (c : Thread nD τ)), KProto.obS0.view.loc (c : Thread nD τ) ↦[KProto.obS0.view.set]{fullShare} f)
      ∗ (∃ f : Buf (Elt F) (KProto.obS1.view.loc (c : Thread nD τ)), KProto.obS1.view.loc (c : Thread nD τ) ↦[KProto.obS1.view.set]{fullShare} f)
      ∗ (∃ f : Buf (Elt F) (KProto.obS2.view.loc (c : Thread nD τ)), KProto.obS2.view.loc (c : Thread nD τ) ↦[KProto.obS2.view.set]{fullShare} f)
      ∗ (∃ f : Buf (Elt F) (KProto.obS3.view.loc (c : Thread nD τ)), KProto.obS3.view.loc (c : Thread nD τ) ↦[KProto.obS3.view.set]{fullShare} f)
      ∗ (∃ f : Buf (Elt F) (KProto.obS4.view.loc (c : Thread nD τ)), KProto.obS4.view.loc (c : Thread nD τ) ↦[KProto.obS4.view.set]{fullShare} f)
      ∗ (∃ f : Buf (Elt F) (KProto.obS5.view.loc (c : Thread nD τ)), KProto.obS5.view.loc (c : Thread nD τ) ↦[KProto.obS5.view.set]{fullShare} f)
      ∗ (∃ f : Buf (Elt F) (KProto.obS6.view.loc (c : Thread nD τ)), KProto.obS6.view.loc (c : Thread nD τ) ↦[KProto.obS6.view.set]{fullShare} f)
      ∗ (∃ f : Buf (Elt F) (KProto.obS7.view.loc (c : Thread nD τ)), KProto.obS7.view.loc (c : Thread nD τ) ↦[KProto.obS7.view.set]{fullShare} f))
      ⊢ (iprop(∃ g : Buf (Elt F) (obM.view.loc (c : Thread nD τ)), obM.view.loc (c : Thread nD τ) ↦{fullShare} g) : sProp 𝕄) := by
  have h : bigSep Finset.univ (fun b : Fin 8 => iprop(∃ f : Buf (Elt F) (obM.view.loc (c : Thread nD τ)), obM.view.loc (c : Thread nD τ) ↦[obI b]{fullShare} f))
      ⊢ (iprop(∃ g : Buf (Elt F) (obM.view.loc (c : Thread nD τ)), obM.view.loc (c : Thread nD τ) ↦{fullShare} g) : sProp 𝕄) :=
    Ring.pointsTo_blocks_join_exists (ℓ := obM.view.loc (c : Thread nD τ)) obI obI_disj obI_cover f₀
  rw [bigSep_univ_eq_bigSepL [0, 1, 2, 3, 4, 5, 6, 7] (by decide) (by decide)] at h
  exact h

/-- The elements of slot s, through the copy's own view. -/
def ibI : Fin 8 → Finset S2x256x256.Idx
  | 0 => KProto.ibS0.view.set
  | 1 => KProto.ibS1.view.set
  | 2 => KProto.ibS2.view.set
  | 3 => KProto.ibS3.view.set
  | 4 => KProto.ibS4.view.set
  | 5 => KProto.ibS5.view.set
  | 6 => KProto.ibS6.view.set
  | 7 => KProto.ibS7.view.set

theorem ibI_eq (s : Fin 8) : ibI s = (KVal.slot s).set := by
  fin_cases s <;> exact (View.set_reshape _ _).trans (View.set_slice_whole _ _)

theorem ibI_disj (s s' : Fin 8) (h : s ≠ s') : Disjoint (ibI s) (ibI s') := by
  have hd := View.disjoint_slice_of_disj ibM.view _ _ (slot_disj s s' h)
  rw [View.set_slice_whole, View.set_slice_whole] at hd
  rw [ibI_eq, ibI_eq]; exact hd

theorem ibI_cover : Finset.univ.biUnion ibI = Finset.univ :=
  Finset.eq_univ_of_forall fun y => by
    obtain ⟨s, hs⟩ := slot_cover y
    exact Finset.mem_biUnion.mpr ⟨s, Finset.mem_univ _, by rw [ibI_eq]; exact hs⟩

/-- The buffer held whole is its eight slots held one by one, at the same contents. -/
theorem cut_ib (c : Dev nD) (f : Buf (Elt F) (ibM.view.loc (c : Thread nD τ))) :
    (ibM.view.loc (c : Thread nD τ) ↦{fullShare} f : sProp 𝕄) =
      iprop((KProto.ibS0.view.loc (c : Thread nD τ) ↦[KProto.ibS0.view.set]{fullShare} f)
      ∗ (KProto.ibS1.view.loc (c : Thread nD τ) ↦[KProto.ibS1.view.set]{fullShare} f)
      ∗ (KProto.ibS2.view.loc (c : Thread nD τ) ↦[KProto.ibS2.view.set]{fullShare} f)
      ∗ (KProto.ibS3.view.loc (c : Thread nD τ) ↦[KProto.ibS3.view.set]{fullShare} f)
      ∗ (KProto.ibS4.view.loc (c : Thread nD τ) ↦[KProto.ibS4.view.set]{fullShare} f)
      ∗ (KProto.ibS5.view.loc (c : Thread nD τ) ↦[KProto.ibS5.view.set]{fullShare} f)
      ∗ (KProto.ibS6.view.loc (c : Thread nD τ) ↦[KProto.ibS6.view.set]{fullShare} f)
      ∗ (KProto.ibS7.view.loc (c : Thread nD τ) ↦[KProto.ibS7.view.set]{fullShare} f)) := by
  rw [Ring.pointsTo_blocks (ℓ := ibM.view.loc (c : Thread nD τ)) ibI ibI_disj ibI_cover f,
    bigSep_univ_eq_bigSepL [0, 1, 2, 3, 4, 5, 6, 7] (by decide) (by decide)]
  rfl

/-- Eight slots, each at some contents, are the buffer whole at some contents. -/
theorem join_ib (c : Dev nD) (f₀ : Buf (Elt F) (ibM.view.loc (c : Thread nD τ))) :
    iprop((∃ f : Buf (Elt F) (KProto.ibS0.view.loc (c : Thread nD τ)), KProto.ibS0.view.loc (c : Thread nD τ) ↦[KProto.ibS0.view.set]{fullShare} f)
      ∗ (∃ f : Buf (Elt F) (KProto.ibS1.view.loc (c : Thread nD τ)), KProto.ibS1.view.loc (c : Thread nD τ) ↦[KProto.ibS1.view.set]{fullShare} f)
      ∗ (∃ f : Buf (Elt F) (KProto.ibS2.view.loc (c : Thread nD τ)), KProto.ibS2.view.loc (c : Thread nD τ) ↦[KProto.ibS2.view.set]{fullShare} f)
      ∗ (∃ f : Buf (Elt F) (KProto.ibS3.view.loc (c : Thread nD τ)), KProto.ibS3.view.loc (c : Thread nD τ) ↦[KProto.ibS3.view.set]{fullShare} f)
      ∗ (∃ f : Buf (Elt F) (KProto.ibS4.view.loc (c : Thread nD τ)), KProto.ibS4.view.loc (c : Thread nD τ) ↦[KProto.ibS4.view.set]{fullShare} f)
      ∗ (∃ f : Buf (Elt F) (KProto.ibS5.view.loc (c : Thread nD τ)), KProto.ibS5.view.loc (c : Thread nD τ) ↦[KProto.ibS5.view.set]{fullShare} f)
      ∗ (∃ f : Buf (Elt F) (KProto.ibS6.view.loc (c : Thread nD τ)), KProto.ibS6.view.loc (c : Thread nD τ) ↦[KProto.ibS6.view.set]{fullShare} f)
      ∗ (∃ f : Buf (Elt F) (KProto.ibS7.view.loc (c : Thread nD τ)), KProto.ibS7.view.loc (c : Thread nD τ) ↦[KProto.ibS7.view.set]{fullShare} f))
      ⊢ (iprop(∃ g : Buf (Elt F) (ibM.view.loc (c : Thread nD τ)), ibM.view.loc (c : Thread nD τ) ↦{fullShare} g) : sProp 𝕄) := by
  have h : bigSep Finset.univ (fun b : Fin 8 => iprop(∃ f : Buf (Elt F) (ibM.view.loc (c : Thread nD τ)), ibM.view.loc (c : Thread nD τ) ↦[ibI b]{fullShare} f))
      ⊢ (iprop(∃ g : Buf (Elt F) (ibM.view.loc (c : Thread nD τ)), ibM.view.loc (c : Thread nD τ) ↦{fullShare} g) : sProp 𝕄) :=
    Ring.pointsTo_blocks_join_exists (ℓ := ibM.view.loc (c : Thread nD τ)) ibI ibI_disj ibI_cover f₀
  rw [bigSep_univ_eq_bigSepL [0, 1, 2, 3, 4, 5, 6, 7] (by decide) (by decide)] at h
  exact h

end Cert.KernelIdeal.KBodyGeo
end
-- ==== Proof.KBodyJoin.lean ====
/-
  Two buffers as the list of their writes. The half-precision receive buffer, landed slot by slot: the eight slots are
  pairwise disjoint and cover the buffer, so the eight landed slots held one by one are the buffer held whole at the eight
  writes, and that is the sender's buffer (the canonical contents of the same eight writes). The output staging buffer:
  its nine stores — the peer's two batch rows and the eight blocks of the device's own two batch rows — cover it, so after
  them it holds their canonical contents whatever it held before.
-/
import proofs.«900482_g7700000000000483_dist_ssm_v7x_xy2x2_y_b4_s256_d256_n16_f32_1_alg».proof.Proof.KVal
import proofs.«900482_g7700000000000483_dist_ssm_v7x_xy2x2_y_b4_s256_d256_n16_f32_1_alg».proof.Proof.KProto
import proofs.«900482_g7700000000000483_dist_ssm_v7x_xy2x2_y_b4_s256_d256_n16_f32_1_alg».proof.Proof.KBodyGeo
import Idealize.ShloMosaic.Lib.HeldBySlice
import Idealize.ShloMosaic.Lib.Pipeline.FrameBody
import Idealize.ShloMosaic.Lib.Ring

set_option maxRecDepth 65536

noncomputable section
namespace Cert.KernelIdeal.KBodyJoin

open Cert.KernelIdeal Cert.KernelIdeal.Gen
open Idealize.ShloMosaic Idealize.ShloMosaic.TcCoe Idealize.ShloMosaic.Tactic
open Idealize.SL Idealize.SL.RA Idealize.SL.BI
open Idealize.SL.BI (bigSep bigSepL bigSep_univ_eq_bigSepL)
open scoped Idealize.SL.BI
open Idealize.SL.BI.BIBase Idealize.SL.BI.Laws Idealize.SL.ProofMode Idealize.SL.Sem
open Cert.KernelIdeal.KProto (UU obM ibM)

variable {F : FTy → Type} [FloatOps F] (m : (ℓ : Loc nD τ sig) → Buf (Elt F) ℓ)

local notation "𝕄" => MT nD τ sig Unit (Elt F) ℕ KProto.UU ℕ

/-! ## The receive buffer -/

/-- A rectangle r of the receive buffer holding an unmasked write of w through it, over any prior contents. -/
abbrev landedAt (c : Dev nD) (r : Rect S2x256x256) (w : r.shape.Idx → Elt F .bf16) : sProp 𝕄 :=
  iprop(∃ f : Buf (Elt F) (ibM.view.loc (c : Thread nD τ)),
    (ibM.access r).loc (c : Thread nD τ) ↦[(ibM.access r).set]{fullShare} (ibM.access r).write (Elt F) f w Finset.univ)

/-- The rectangles of the eight writes, slot 7 first. -/
theorem obufL_rects (d : Dev nD) :
    (KVal.obufL m d).map (fun p => p.1) = ([7, 6, 5, 4, 3, 2, 1, 0] : List (Fin 8)).map KVal.slot := rfl

/-- Two different slots of the receive buffer share no element. -/
theorem access_disj (s s' : Fin 8) (h : s ≠ s') :
    Disjoint (ibM.access (KVal.slot s)).set (ibM.access (KVal.slot s')).set :=
  View.disjoint_slice_of_disj ibM.view _ _ (KBodyGeo.slot_disj s s' h)

/-- The eight writes' rectangles are pairwise disjoint. -/
theorem obufL_pairwise (d : Dev nD) :
    (KVal.obufL m d).Pairwise (fun p p' => Disjoint (ibM.access p.1).set (ibM.access p'.1).set) := by
  have h : ((KVal.obufL m d).map (fun p => p.1)).Pairwise
      (fun r r' => Disjoint (ibM.access r).set (ibM.access r').set) := by
    rw [obufL_rects, List.pairwise_map]
    exact List.Pairwise.imp (fun {s s'} hne => access_disj s s' hne)
      (by decide : ([7, 6, 5, 4, 3, 2, 1, 0] : List (Fin 8)).Pairwise (· ≠ ·))
  exact List.pairwise_map.mp h

/-- Every element of the buffer lies in the rectangle of one of the eight writes. -/
theorem obufL_cover (d : Dev nD) (y : S2x256x256.Idx) : ∃ p ∈ KVal.obufL m d, y ∈ p.1.set := by
  obtain ⟨s, hs⟩ := KBodyGeo.slot_cover y
  have hall : ∀ s : Fin 8, s ∈ ([7, 6, 5, 4, 3, 2, 1, 0] : List (Fin 8)) := by decide
  have hmem : KVal.slot s ∈ (KVal.obufL m d).map (fun p => p.1) := by
    rw [obufL_rects]
    exact List.mem_map.mpr ⟨s, hall s, rfl⟩
  obtain ⟨p, hp, hps⟩ := List.mem_map.mp hmem
  exact ⟨p, hp, by rw [hps]; exact hs⟩

/-- A piece's elements are among the elements under the list's rectangles. -/
theorem subset_piecesSet (t : Thread nD τ) {sp : Space} {s : Shape} {e : EltTy} (M : Memref sig t.2.kind sp s e) :
    ∀ (L : List (View.Piece (Elt F) s e)) (p : View.Piece (Elt F) s e), p ∈ L →
      (M.access p.1).set ⊆ Memref.piecesSet t M L
  | [], p, hp => absurd hp List.not_mem_nil
  | q :: L, p, hp => by
    unfold Memref.piecesSet
    rcases List.mem_cons.mp hp with rfl | hp
    · exact Finset.subset_union_left
    · exact (subset_piecesSet t M L p hp).trans Finset.subset_union_right

/-- The eight writes' rectangles are all of the receive buffer. -/
theorem obufL_piecesSet (c d : Dev nD) :
    Memref.piecesSet (c : Thread nD τ) ibM (KVal.obufL m d) = Finset.univ :=
  Finset.eq_univ_of_forall fun y => by
    obtain ⟨p, hp, hy⟩ := obufL_cover m d y
    refine subset_piecesSet (c : Thread nD τ) ibM _ p hp ?_
    rw [show (ibM.access p.1).set = p.1.set from View.set_slice_whole _ _]
    exact hy

/-- The eight landed slots held one by one are the receive buffer held whole at the eight writes over any contents h. -/
theorem join_ib_val (c : Dev nD) (h : Buf (Elt F) (ibM.view.loc (c : Thread nD τ))) :
    iprop(landedAt c KProto.sl0 (KVal.yblk16 m (KVal.xpeer c) 0) ∗ landedAt c KProto.sl1 (KVal.yblk16 m (KVal.xpeer c) 1) ∗ landedAt c KProto.sl2 (KVal.yblk16 m (KVal.xpeer c) 2) ∗ landedAt c KProto.sl3 (KVal.yblk16 m (KVal.xpeer c) 3)
      ∗ landedAt c KProto.sl4 (KVal.yblk16 m (KVal.xpeer c) 4) ∗ landedAt c KProto.sl5 (KVal.yblk16 m (KVal.xpeer c) 5) ∗ landedAt c KProto.sl6 (KVal.yblk16 m (KVal.xpeer c) 6) ∗ landedAt c KProto.sl7 (KVal.yblk16 m (KVal.xpeer c) 7))
      ⊢ (ibM.view.loc (c : Thread nD τ) ↦{fullShare} ibM.view.writes (Elt F) h (KVal.obufL m (KVal.xpeer c)) : sProp 𝕄) := by
  have hjoin : Memref.heldBySlice (c : Thread nD τ) ibM fullShare (KVal.obufL m (KVal.xpeer c))
      ⊢ (ibM.view.loc (c : Thread nD τ) ↦[Memref.piecesSet (c : Thread nD τ) ibM (KVal.obufL m (KVal.xpeer c))]{fullShare}
          ibM.view.writes (Elt F) h (KVal.obufL m (KVal.xpeer c)) : sProp 𝕄) :=
    Memref.heldBySlice_join (c : Thread nD τ) ibM fullShare h (KVal.obufL m (KVal.xpeer c))
      (obufL_pairwise m (KVal.xpeer c))
  rw [obufL_piecesSet m c (KVal.xpeer c)] at hjoin
  refine BIBase.Entails.trans ?_ hjoin
  show _ ⊢ iprop(landedAt c KProto.sl7 (KVal.yblk16 m (KVal.xpeer c) 7) ∗ landedAt c KProto.sl6 (KVal.yblk16 m (KVal.xpeer c) 6) ∗ landedAt c KProto.sl5 (KVal.yblk16 m (KVal.xpeer c) 5) ∗ landedAt c KProto.sl4 (KVal.yblk16 m (KVal.xpeer c) 4)
    ∗ landedAt c KProto.sl3 (KVal.yblk16 m (KVal.xpeer c) 3) ∗ landedAt c KProto.sl2 (KVal.yblk16 m (KVal.xpeer c) 2) ∗ landedAt c KProto.sl1 (KVal.yblk16 m (KVal.xpeer c) 1) ∗ landedAt c KProto.sl0 (KVal.yblk16 m (KVal.xpeer c) 0) ∗ emp)
  iintro ⟨H0, H1, H2, H3, H4, H5, H6, H7⟩
  isplitl [H7]; · iexact H7
  isplitl [H6]; · iexact H6
  isplitl [H5]; · iexact H5
  isplitl [H4]; · iexact H4
  isplitl [H3]; · iexact H3
  isplitl [H2]; · iexact H2
  isplitl [H1]; · iexact H1
  isplitl [H0]; · iexact H0
  iempintro

/-- The receive buffer at the eight writes, over any contents, is the x-peer's send buffer. -/
theorem ib_writes_eq (c : Dev nD) (h : Buf (Elt F) (ibM.view.loc (c : Thread nD τ))) :
    ibM.view.writes (Elt F) h (KVal.obufL m (KVal.xpeer c)) = KVal.ibufVal m c := by
  have h1 := View.read_writes_eq_canon ibM.view h (KVal.obufL m (KVal.xpeer c)) (obufL_cover m (KVal.xpeer c))
  simp only [Memref.view_whole, View.read_whole] at h1 ⊢
  unfold KVal.ibufVal KVal.obufV
  exact h1

/-! ## The output staging buffer -/

/-- Membership in a unit-stride rectangle of a [4, 256, 256] shape, coordinate by coordinate. -/
theorem mem_of_bounds (off size : Fin 3 → ℕ) (inb : ∀ a, off a + size a ≤ S4x256x256.size a)
    (o0 o1 o2 z0 z1 z2 : ℕ) (ho : off = ![o0, o1, o2]) (hz : size = ![z0, z1, z2]) (y : S4x256x256.Idx)
    (h0 : o0 ≤ (y (0 : Fin 3) : ℕ) ∧ (y (0 : Fin 3) : ℕ) < o0 + z0)
    (h1 : o1 ≤ (y (1 : Fin 3) : ℕ) ∧ (y (1 : Fin 3) : ℕ) < o1 + z1)
    (h2 : o2 ≤ (y (2 : Fin 3) : ℕ) ∧ (y (2 : Fin 3) : ℕ) < o2 + z2) :
    y ∈ (Rect.unit (s := S4x256x256) off size inb).set := by
  subst ho hz
  rw [Rect.mem_set_unit]
  intro a
  fin_cases a
  · exact h0
  · exact h1
  · exact h2

/-- Every element of the output staging buffer lies in the rectangle of one of the nine stores: batch rows
    2 - 2 mx and 3 - 2 mx in the peer's store, batch row 2 mx + r, rows 64 q .. 64 q + 63, in the store of block 4 r + q. -/
theorem out_cover (c : Dev nD) (y : S4x256x256.Idx) : ∃ p ∈ KVal.outL m c, y ∈ p.1.set := by
  have hc : c.val < 4 := c.isLt
  have h0 : (y (0 : Fin 3) : ℕ) < 4 := (y (0 : Fin 3)).isLt
  have h1 : (y (1 : Fin 3) : ℕ) < 256 := (y (1 : Fin 3)).isLt
  have h2 : (y (2 : Fin 3) : ℕ) < 256 := (y (2 : Fin 3)).isLt
  unfold KVal.outL
  by_cases hA : 2 - 2 * (c.val / 2) ≤ (y (0 : Fin 3) : ℕ) ∧ (y (0 : Fin 3) : ℕ) < 2 - 2 * (c.val / 2) + 2
  · exact ⟨_, List.mem_cons_self,
      mem_of_bounds (k0_off7 c) S2x256x256.size (Gen.k0_off7_inb c) (2 - 2 * (c.val / 2)) 0 0 2 256 256 (Gen.k0_off7_eq c) rfl y hA ⟨Nat.zero_le _, by omega⟩ ⟨Nat.zero_le _, by omega⟩⟩
  · have hr : (y (0 : Fin 3) : ℕ) = 2 * (c.val / 2) + 0 ∨ (y (0 : Fin 3) : ℕ) = 2 * (c.val / 2) + 1 := by omega
    have hq : (y (1 : Fin 3) : ℕ) < 64 ∨ (64 ≤ (y (1 : Fin 3) : ℕ) ∧ (y (1 : Fin 3) : ℕ) < 128)
        ∨ (128 ≤ (y (1 : Fin 3) : ℕ) ∧ (y (1 : Fin 3) : ℕ) < 192) ∨ 192 ≤ (y (1 : Fin 3) : ℕ) := by omega
    rcases hr with hr | hr <;> rcases hq with hq | hq | hq | hq
    · exact ⟨_, List.mem_cons_of_mem _ (List.mem_cons_of_mem _ (List.mem_cons_of_mem _ (List.mem_cons_of_mem _
        (List.mem_cons_of_mem _ (List.mem_cons_of_mem _ (List.mem_cons_of_mem _ (List.mem_cons_of_mem _
        List.mem_cons_self))))))),
        mem_of_bounds (k0_off3 c 0#32) S1x64x256.size (Gen.k0_off3_inb c 0) (2 * (c.val / 2) + 0) 0 0 1 64 256 (Gen.k0_off3_eq c ⟨0, by decide⟩) rfl y ⟨by omega, by omega⟩
          ⟨by omega, by omega⟩ ⟨Nat.zero_le _, by omega⟩⟩
    · exact ⟨_, List.mem_cons_of_mem _ (List.mem_cons_of_mem _ (List.mem_cons_of_mem _ (List.mem_cons_of_mem _
        (List.mem_cons_of_mem _ (List.mem_cons_of_mem _ (List.mem_cons_of_mem _ List.mem_cons_self)))))),
        mem_of_bounds (k0_off4 c 0#32) S1x64x256.size (Gen.k0_off4_inb c 0) (2 * (c.val / 2) + 0) 64 0 1 64 256 (Gen.k0_off4_eq c ⟨0, by decide⟩) rfl y ⟨by omega, by omega⟩
          ⟨by omega, by omega⟩ ⟨Nat.zero_le _, by omega⟩⟩
    · exact ⟨_, List.mem_cons_of_mem _ (List.mem_cons_of_mem _ (List.mem_cons_of_mem _ (List.mem_cons_of_mem _
        (List.mem_cons_of_mem _ (List.mem_cons_of_mem _ List.mem_cons_self))))),
        mem_of_bounds (k0_off5 c 0#32) S1x64x256.size (Gen.k0_off5_inb c 0) (2 * (c.val / 2) + 0) 128 0 1 64 256 (Gen.k0_off5_eq c ⟨0, by decide⟩) rfl y ⟨by omega, by omega⟩
          ⟨by omega, by omega⟩ ⟨Nat.zero_le _, by omega⟩⟩
    · exact ⟨_, List.mem_cons_of_mem _ (List.mem_cons_of_mem _ (List.mem_cons_of_mem _ (List.mem_cons_of_mem _
        (List.mem_cons_of_mem _ List.mem_cons_self)))),
        mem_of_bounds (k0_off6 c 0#32) S1x64x256.size (Gen.k0_off6_inb c 0) (2 * (c.val / 2) + 0) 192 0 1 64 256 (Gen.k0_off6_eq c ⟨0, by decide⟩) rfl y ⟨by omega, by omega⟩
          ⟨by omega, by omega⟩ ⟨Nat.zero_le _, by omega⟩⟩
    · exact ⟨_, List.mem_cons_of_mem _ (List.mem_cons_of_mem _ (List.mem_cons_of_mem _ (List.mem_cons_of_mem _
        List.mem_cons_self))),
        mem_of_bounds (k0_off3 c 1#32) S1x64x256.size (Gen.k0_off3_inb c 1) (2 * (c.val / 2) + 1) 0 0 1 64 256 (Gen.k0_off3_eq c ⟨1, by decide⟩) rfl y ⟨by omega, by omega⟩
          ⟨by omega, by omega⟩ ⟨Nat.zero_le _, by omega⟩⟩
    · exact ⟨_, List.mem_cons_of_mem _ (List.mem_cons_of_mem _ (List.mem_cons_of_mem _ List.mem_cons_self)),
        mem_of_bounds (k0_off4 c 1#32) S1x64x256.size (Gen.k0_off4_inb c 1) (2 * (c.val / 2) + 1) 64 0 1 64 256 (Gen.k0_off4_eq c ⟨1, by decide⟩) rfl y ⟨by omega, by omega⟩
          ⟨by omega, by omega⟩ ⟨Nat.zero_le _, by omega⟩⟩
    · exact ⟨_, List.mem_cons_of_mem _ (List.mem_cons_of_mem _ List.mem_cons_self),
        mem_of_bounds (k0_off5 c 1#32) S1x64x256.size (Gen.k0_off5_inb c 1) (2 * (c.val / 2) + 1) 128 0 1 64 256 (Gen.k0_off5_eq c ⟨1, by decide⟩) rfl y ⟨by omega, by omega⟩
          ⟨by omega, by omega⟩ ⟨Nat.zero_le _, by omega⟩⟩
    · exact ⟨_, List.mem_cons_of_mem _ List.mem_cons_self,
        mem_of_bounds (k0_off6 c 1#32) S1x64x256.size (Gen.k0_off6_inb c 1) (2 * (c.val / 2) + 1) 192 0 1 64 256 (Gen.k0_off6_eq c ⟨1, by decide⟩) rfl y ⟨by omega, by omega⟩
          ⟨by omega, by omega⟩ ⟨Nat.zero_le _, by omega⟩⟩

/-- The output staging buffer after its nine stores, over any contents, is their canonical contents. -/
theorem out_writes_eq (c : Dev nD) (f : Buf (Elt F) ((Memref.whole cc0_stg4_0).view.loc (c : Thread nD τ))) :
    (Memref.whole cc0_stg4_0).view.writes (Elt F) f (KVal.outL m c) = KVal.outAt m c := by
  have h1 := View.read_writes_eq_canon (Memref.whole cc0_stg4_0).view f (KVal.outL m c) (out_cover m c)
  simp only [Memref.view_whole, View.read_whole] at h1 ⊢
  unfold KVal.outAt KVal.outV
  exact h1

end Cert.KernelIdeal.KBodyJoin

end
-- ==== Proof.KBodyCommon.lean ====
/-
  Small facts the body's run uses at a symbolic device: a buffer named by its reference is the buffer through its
  whole view; a buffer's elements on a device restated at another name of the same device; one store through the
  whole rectangle leaves its payload; the two word tests of the body per parity of my; the barrier's two payloads;
  the nine stores into the output staging buffer tile it.
-/
import proofs.«900482_g7700000000000483_dist_ssm_v7x_xy2x2_y_b4_s256_d256_n16_f32_1_alg».proof.Proof.KVal
import proofs.«900482_g7700000000000483_dist_ssm_v7x_xy2x2_y_b4_s256_d256_n16_f32_1_alg».proof.Proof.KProto
import proofs.«900482_g7700000000000483_dist_ssm_v7x_xy2x2_y_b4_s256_d256_n16_f32_1_alg».proof.Proof.KBodyJoin
import proofs.«900482_g7700000000000483_dist_ssm_v7x_xy2x2_y_b4_s256_d256_n16_f32_1_alg».proof.Proof.Gen.KernelIdeal.Skeleton
import Idealize.ShloMosaic.Lib.Exec
import Idealize.ShloMosaic.Lib.Pipeline.Value

set_option maxRecDepth 65536

noncomputable section
namespace Cert.KernelIdeal.KBodyCommon

open Cert.KernelIdeal Cert.KernelIdeal.Gen
open Idealize.ShloMosaic Idealize.ShloMosaic.TcCoe Idealize.ShloMosaic.Tactic
open Idealize.SL Idealize.SL.RA Idealize.SL.BI
open Idealize.SL.BI (bigSep bigSepL bigSep_univ_eq_bigSepL)
open scoped Idealize.SL.BI
open Idealize.SL.BI.BIBase Idealize.SL.BI.Laws Idealize.SL.ProofMode Idealize.SL.Sem
open Idealize.ShloMosaic.Rounds
open Cert.KernelIdeal.KVal (ypeer xpeer)
open Cert.KernelIdeal.KProto (UB UU EP ER hsM hiM obM ibM barS ysS yrS barCell ysCell yrCell xsCell xrCell sched)

variable {F : FTy → Type} [FloatOps F]

local notation "𝕄" => MT nD τ sig Unit (Elt F) ℕ UU ℕ

/-- A buffer named by its reference is the buffer through its whole view. -/
theorem toView (c : Dev nD) (b : Ref sig .tc) (f : Buf (Elt F) ((c : Thread nD τ).loc b)) :
    (((c : Thread nD τ).loc b) ↦{fullShare} f : sProp 𝕄) ⊢ ((Memref.whole b).view.loc (c : Thread nD τ) ↦{fullShare} f) := Entails.rfl

/-- Elements of a buffer on a device, restated at another name of the same device, at some contents. -/
theorem toDev {c d : Dev nD} (h : d = c) {sp : Space} {s : Shape} {e : EltTy} (M : Memref sig .tc sp s e)
    (f : Buf (Elt F) (M.view.loc (c : Thread nD τ))) :
    (M.view.loc (c : Thread nD τ) ↦[M.view.set]{fullShare} f : sProp 𝕄)
      ⊢ iprop(∃ f' : Buf (Elt F) (M.view.loc (d : Thread nD τ)), M.view.loc (d : Thread nD τ) ↦[M.view.set]{fullShare} f') := by
  subst h; iintro H; iexists f; iexact H

/-- The same for a buffer held whole. -/
theorem toDevW {c d : Dev nD} (h : d = c) {sp : Space} {s : Shape} {e : EltTy} (M : Memref sig .tc sp s e)
    (f : Buf (Elt F) (M.view.loc (c : Thread nD τ))) :
    (M.view.loc (c : Thread nD τ) ↦{fullShare} f : sProp 𝕄)
      ⊢ iprop(∃ f' : Buf (Elt F) (M.view.loc (d : Thread nD τ)), M.view.loc (d : Thread nD τ) ↦{fullShare} f') := by
  subst h; iintro H; iexists f; iexact H

/-- The y-peer's number under the branch on my = 0, whatever proof bounds it. -/
theorem dev3_eq' (c : Dev nD) (hlt : k0_dev3 c < nD) : (⟨k0_dev3 c, hlt⟩ : Dev nD) = ypeer c := Fin.ext (Gen.k0_dev3_eq c)

/-- One store through the whole rectangle of a buffer leaves exactly its payload. -/
theorem pt_whole1 (c : Dev nD) (b : Ref sig .tc) {off : Fin b.ty.shape.rank → Nat} (h : off = fun _ => 0)
    (inb : ∀ a, off a + b.ty.shape.size a ≤ b.ty.shape.size a) (f w : b.ty.Contents (Elt F)) :
    (View.loc (c : Thread nD τ) (Memref.whole b).view ↦{fullShare}
        ((Memref.whole b).view.writes (Elt F) f [⟨Rect.unit off b.ty.shape.size inb, w⟩] : Buf (Elt F) (View.loc (c : Thread nD τ) (Memref.whole b).view)) : sProp 𝕄)
      ⊢ (View.loc (c : Thread nD τ) (Memref.whole b).view ↦{fullShare} (w : Buf (Elt F) (View.loc (c : Thread nD τ) (Memref.whole b).view))) := by
  have e : (Memref.whole b).view.writes (Elt F) f [⟨Rect.unit off b.ty.shape.size inb, w⟩] = w :=
    Memref.write_access_unit_zero_univ (Elt F) b h inb f w
  rw [e]

/-- The word test "my = 1" of the body, on the devices with my = 0 and with my = 1. -/
theorem v159_even : ∀ c : Dev nD, c.val % 2 = 0 →
    (Scalar.cmpi .ne (Scalar.extui (Scalar.cmpi .eq (Scalar.remsi (Scalar.divsi (Dev.word c) 1#32) 2#32) 1#32)) 0#32 : BitVec 1) = 0#1 := by decide +kernel
theorem v159_odd : ∀ c : Dev nD, c.val % 2 = 1 →
    (Scalar.cmpi .ne (Scalar.extui (Scalar.cmpi .eq (Scalar.remsi (Scalar.divsi (Dev.word c) 1#32) 2#32) 1#32)) 0#32 : BitVec 1) = 1#1 := by decide +kernel
/-- The word test "my = 0" of the body. -/
theorem v501_even : ∀ c : Dev nD, c.val % 2 = 0 →
    (Scalar.cmpi .ne (Scalar.extui (Scalar.cmpi .eq (Scalar.remsi (Scalar.divsi (Dev.word c) 1#32) 2#32) 0#32)) 0#32 : BitVec 1) = 1#1 := by decide +kernel
theorem v501_odd : ∀ c : Dev nD, c.val % 2 = 1 →
    (Scalar.cmpi .ne (Scalar.extui (Scalar.cmpi .eq (Scalar.remsi (Scalar.divsi (Dev.word c) 1#32) 2#32) 0#32)) 0#32 : BitVec 1) = 0#1 := by decide +kernel

variable (m : (ℓ : Loc nD τ sig) → Buf (Elt F) ℓ)

/-- The nine stores into the output staging buffer tile it: whatever it held, it ends at the named contents. -/
theorem out_writes_eq' (c : Dev nD) (f : Buf (Elt F) ((Memref.whole cc0_stg4_0).view.loc (c : Thread nD τ)))
    (L : List (View.Piece (Elt F) S4x256x256 .f32)) (hL : L = KVal.outL m c) :
    (Memref.whole cc0_stg4_0).view.writes (Elt F) f L = KVal.outAt m c := hL ▸ KBodyJoin.out_writes_eq m c f

/-- The barrier's round: the y-peer's payload and the x-peer's. -/
theorem bar_split (c : Dev nD) :
    bigSep Finset.univ (fun d : Bool => (sched (F := F) m).payload (barCell c) 0 d) = iprop(KProto.barPayY c ∗ KProto.barPayX c) := by
  rw [bigSep_univ_eq_bigSepL [false, true] (by decide) (by decide), Idealize.SL.BI.bigSepL_cons_cons, Idealize.SL.BI.bigSepL_singleton,
    KProto.payload_bar_false, KProto.payload_bar_true]
  rfl

/-- A load of the whole receive buffer after its eight landings reads the x-peer's rows. -/
theorem ibuf_read (c : Dev nD) :
    ibM.view.readCov (KVal.obufL m (xpeer c)) (Rect.unit (s := S2x256x256) ![0, 0, 0] S2x256x256.size inb_S2x256x256_S2x256x256_0_0_0).toLoadRect
      = KVal.obufV m (xpeer c) := by
  show _ = View.canon (KVal.obufL m (xpeer c))
  rw [View.readCov_eq_canon']
  exact View.ld_unit_zero (by funext a; fin_cases a <;> rfl) _ (View.canon (KVal.obufL m (xpeer c)))

end Cert.KernelIdeal.KBodyCommon
end
-- ==== Proof.KSend.lean ====
/-
  The kernel's remote copies as rules at the schedule: the state copy along the y axis (from a device with my = 0
  into its y-peer's receive buffer) and the copy of each half-precision slot along the x axis (into the x-peer's
  receive buffer), each paying its send duty with the source given back and its receive duty with the contents landed.
-/
import proofs.«900482_g7700000000000483_dist_ssm_v7x_xy2x2_y_b4_s256_d256_n16_f32_1_alg».proof.Proof.KProto
import Idealize.ShloMosaic.Lib.Writes
import Idealize.ShloMosaic.Lib.Tactic

noncomputable section

namespace Cert.KernelIdeal.KSend

open Cert.KernelIdeal Cert.KernelIdeal.Gen Cert.KernelIdeal.KProto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.KVal (ypeer xpeer ypeer_ypeer xpeer_xpeer)

variable {F : FTy → Type} [FloatOps F]

local notation "𝕄" => MT nD τ sig Unit (Elt F) ℕ UU ℕ

variable (m : (ℓ : Loc nD τ sig) → Buf (Elt F) ℓ)

/-- What a device with my = 1 finds in its receive buffer is what its y-peer sent. -/
theorem hinVal_ypeer (c : Dev nD) (hc : c.val % 2 = 0) : KVal.hinVal m (ypeer c) = KVal.hsendVal m c := by
  unfold KVal.hinVal KVal.hinV KVal.hsendVal
  rw [if_neg (by rw [KVal.ypeer_mod]; omega), ypeer_ypeer]

/-- The state copy, whole buffer to whole buffer, lands the source's contents. -/
theorem landed_y (c : Dev nD) (fd : Buf (Elt F) (hiM.view.loc (ypeer c : Thread nD τ))) (fs : Buf (Elt F) (hsM.view.loc (c : Thread nD τ))) :
    (hiM : Memref sig .tc .vmem S2x16x256 .f32).view.write (Elt F) fd ((hsM : Memref sig .tc .vmem S2x16x256 .f32).view.read (Elt F) fs) Finset.univ = fs := by
  show (View.whole cc0_scratch2).write (Elt F) fd ((View.whole cc0_scratch1).read (Elt F) fs) Finset.univ = fs
  rw [View.read_whole]
  exact View.write_whole_univ _ _ _

/-- The state copy from a device with my = 0 to its y-peer `n`. -/
theorem wp_send_y (c n : Dev nD) (hc : c.val % 2 = 0) (hn : n = ypeer c)
    {hsc : (hiM : Memref sig (Dev.tc n : Thread nD τ).2.kind .vmem S2x16x256 .f32).view.ref.isScScratch = false}
    {hsrc : (hsM : Memref sig .tc .vmem S2x16x256 .f32).view.WordExact} {hdst : (hiM : Memref sig .tc .vmem S2x16x256 .f32).view.WordExact}
    {hsem : DmaTarget.Typed .vmem (.dma yrS) (.remote (Dev.tc n : Thread nD τ) (hiM : Memref sig .tc .vmem S2x16x256 .f32) (.dma ysS) hsc)}
    {α : Type} {Q : α → sProp 𝕄} {k : PUnit → Prog (TpuEff nD τ sig (Elt F) Λ₀ .tc) α} {κ₁ κ₂ : ℕ}
    (fs : Buf (Elt F) (hsM.view.loc (c : Thread nD τ))) (hfs : fs = KVal.hsendVal m c)
    (fd : Buf (Elt F) (hiM.view.loc (ypeer c : Thread nD τ))) (O : CellTallies nD τ sig Unit) (W : Waits sig Unit) :
    iprop(cellInv ER (sched m) κ₁ (ysCell c) ∗ cellInv ER (sched m) κ₂ (yrCell (ypeer c))
        ∗ (hsM.view.loc (c : Thread nD τ) ↦{fullShare} fs) ∗ (hiM.view.loc (ypeer c : Thread nD τ) ↦{fullShare} fd)
        ∗ owes (c : Thread nD τ) (O + tallyAt (yrCell (ypeer c)) () NY) W
        ∗ dutyTok ER (ysCell c) 0 false ∗ reached ER (ysCell c) 0
        ∗ dutyTok ER (yrCell (ypeer c)) 0 false ∗ reached ER (yrCell (ypeer c)) 0)
      ⊢ iprop(((cred (tallyAt (ysCell c) () NY) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma hsM (.remote (Dev.tc n : Thread nD τ) hiM (.dma ysS) hsc) (.dma yrS) hsrc hdst hsem) k) Q) := by
  subst hn
  have hodd : (ypeer c).val % 2 = 1 := by rw [KVal.ypeer_mod]; omega
  have key : iprop(cellInv ER (sched m) κ₁ (ysCell c) ∗ cellInv ER (sched m) κ₂ (yrCell (ypeer c))
        ∗ (hsM.view.loc (c : Thread nD τ) ↦[hsM.view.set]{fullShare} fs) ∗ (hiM.view.loc (ypeer c : Thread nD τ) ↦[hiM.view.set]{fullShare} fd)
        ∗ owes (c : Thread nD τ) (O + tallyAt (yrCell (ypeer c)) () NY) W
        ∗ dutyTok ER (ysCell c) 0 false ∗ reached ER (ysCell c) 0
        ∗ dutyTok ER (yrCell (ypeer c)) 0 false ∗ reached ER (yrCell (ypeer c)) 0)
      ⊢ iprop(((cred (tallyAt (ysCell c) () NY) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma hsM (.remote (Dev.tc (ypeer c) : Thread nD τ) hiM (.dma ysS) hsc) (.dma yrS) hsrc hdst hsem) k) Q) := Rounds.wp_send_pointsTo 𝒱₀ ER (sched m) (c : Thread nD τ) none (κ₁ := κ₁) (κ₂ := κ₂) (hsc := hsc) (hsrc := hsrc) (hdst := hdst) (hsem := hsem)
    (src := hsM) (dst := hiM) (c' := (ypeer c : Thread nD τ)) (q := fullShare) (fs := fs) (k := k) (Q := Q)
    (r₁ := 0) (r₂ := 0) (d₁ := false) (d₂ := false) (fd := fd)
    (by rw [duties_ys m c hc]; exact Finset.mem_singleton_self _) (by rw [duties_yr m (ypeer c) hodd]; exact Finset.mem_singleton_self _)
    () () NY rfl (amount_ys m c false) (amount_yr m (ypeer c) false) O rfl (W := W)
    (by
      rw [payload_ys]; unfold ysPay; rw [View.set_whole]
      iintro H; iexists fs; iexact H)
    (by
      rw [payload_yr]; unfold yrPay; rw [landed_y, View.set_whole, hinVal_ypeer m c hc, hfs])
  rw [View.set_whole, View.set_whole] at key
  exact key

/-! ## A copy between squeezed slots -/

/-- Reading through a re-indexed view what was written, unmasked, through the view: the payload re-indexed. -/
theorem read_reshape_write {κ : Kind} {sp : Space} {s : Shape} {e : EltTy} (v : View sig κ sp s e) {s' : Shape} (h : s'.numel = s.numel)
    (g : v.ty.Contents (Elt F)) (P : s.Idx → Elt F e) :
    (v.reshape s' h).read (Elt F) (v.write (Elt F) g P Finset.univ) = fun y => P (Shape.reshapeEquiv h y) := by
  funext y
  rw [← View.read_write_of_mem (v := v) g P (M := Finset.univ) (x := Shape.reshapeEquiv h y) (Finset.mem_univ _)]
  rfl

/-- A copy from a re-indexed view of one buffer to the same re-indexing of a view of another lands, under the
    destination view, the payload last written under the source view. -/
theorem landed_slot {κ κ' : Kind} {sp sp' : Space} {s : Shape} {e : EltTy} (vd : View sig κ' sp' s e) (vs : View sig κ sp s e) {s' : Shape}
    (h : s'.numel = s.numel) (fd : vd.ty.Contents (Elt F)) (g : vs.ty.Contents (Elt F)) (P : s.Idx → Elt F e) :
    (vd.reshape s' h).write (Elt F) fd ((vs.reshape s' h).read (Elt F) (vs.write (Elt F) g P Finset.univ)) Finset.univ
      = vd.write (Elt F) fd P Finset.univ := by
  rw [View.write_reshape_univ, read_reshape_write]
  congr 1
  funext x
  exact congrArg P (Equiv.apply_symm_apply _ x)

/-- So the landing's points-to, under the re-indexed destination view, is the destination rectangle holding the payload
    written over whatever it held. -/
theorem pay_slot (t : Thread nD τ) {κ : Kind} {sp sp' : Space} {s : Shape} {e : EltTy} (vd : View sig t.2.kind sp' s e) (vs : View sig κ sp s e) {s' : Shape}
    (h : s'.numel = s.numel) (fd : Buf (Elt F) (vd.loc t)) (g : vs.ty.Contents (Elt F)) (P : s.Idx → Elt F e) :
    (((vd.reshape s' h).loc t) ↦[(vd.reshape s' h).set]{fullShare}
        (vd.reshape s' h).write (Elt F) fd ((vs.reshape s' h).read (Elt F) (vs.write (Elt F) g P Finset.univ)) Finset.univ : sProp 𝕄)
      ⊢ iprop(∃ f : Buf (Elt F) (vd.loc t), vd.loc t ↦[vd.set]{fullShare} vd.write (Elt F) f P Finset.univ) := by
  rw [landed_slot, View.set_reshape]
  iintro H; iexists fd; iexact H

/-- The copy of slot 0 from a device to its x-peer `n`. -/
theorem wp_send_x0 (c n : Dev nD) (hn : n = xpeer c)
    {hsc : (ibS0 : Memref sig (Dev.tc n : Thread nD τ).2.kind .vmem S64x256 .bf16).view.ref.isScScratch = false}
    {hsrc : (obS0 : Memref sig .tc .vmem S64x256 .bf16).view.WordExact} {hdst : (ibS0 : Memref sig .tc .vmem S64x256 .bf16).view.WordExact}
    {hsem : DmaTarget.Typed .vmem (.dma xrS0) (.remote (Dev.tc n : Thread nD τ) (ibS0 : Memref sig .tc .vmem S64x256 .bf16) (.dma xsS0) hsc)}
    {α : Type} {Q : α → sProp 𝕄} {k : PUnit → Prog (TpuEff nD τ sig (Elt F) Λ₀ .tc) α} {κ₁ κ₂ : ℕ}
    (fs : Buf (Elt F) (obS0.view.loc (c : Thread nD τ))) (g : Buf (Elt F) (obM.view.loc (c : Thread nD τ)))
    (hfs : fs = (obM.access sl0).write (Elt F) g (KVal.yblk16 m c 0) Finset.univ)
    (fd : Buf (Elt F) (ibS0.view.loc (xpeer c : Thread nD τ))) (O : CellTallies nD τ sig Unit) (W : Waits sig Unit) :
    iprop(cellInv ER (sched m) κ₁ (xsCell c 0) ∗ cellInv ER (sched m) κ₂ (xrCell (xpeer c) 0)
        ∗ (obS0.view.loc (c : Thread nD τ) ↦[obS0.view.set]{fullShare} fs) ∗ (ibS0.view.loc (xpeer c : Thread nD τ) ↦[ibS0.view.set]{fullShare} fd)
        ∗ owes (c : Thread nD τ) (O + tallyAt (xrCell (xpeer c) 0) () NX) W
        ∗ dutyTok ER (xsCell c 0) 0 false ∗ reached ER (xsCell c 0) 0
        ∗ dutyTok ER (xrCell (xpeer c) 0) 0 false ∗ reached ER (xrCell (xpeer c) 0) 0)
      ⊢ iprop(((cred (tallyAt (xsCell c 0) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS0 (.remote (Dev.tc n : Thread nD τ) ibS0 (.dma xsS0) hsc) (.dma xrS0) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 0) 0; rw [duties_xs]; exact Finset.mem_singleton_self _)
    (by show false ∈ (sched m).duties (xrCell (xpeer c) 0) 0; rw [duties_xr]; exact Finset.mem_singleton_self _)
    () () NX rfl (amount_xs m c 0 false) (amount_xr m (xpeer c) 0 false) O rfl (W := W)
    (by
      show _ ⊢ (sched m).payload (xsCell c 0) 0 false
      rw [payload_xs]
      show _ ⊢ iprop(∃ f : Buf (Elt F) (obS0.view.loc (c : Thread nD τ)), obS0.view.loc (c : Thread nD τ) ↦[obS0.view.set]{fullShare} f)
      iintro H; iexists fs; iexact H)
    (by
      show _ ⊢ (sched m).payload (xrCell (xpeer c) 0) 0 false
      rw [payload_xr, hfs, xrPay_0, xpeer_xpeer]
      exact pay_slot (xpeer c : Thread nD τ) (ibM.access sl0) (obM.access sl0) squeezes_S1x64x256_S64x256.numel_eq fd g (KVal.yblk16 m c 0))

/-- The copy of slot 1 from a device to its x-peer `n`. -/
theorem wp_send_x1 (c n : Dev nD) (hn : n = xpeer c)
    {hsc : (ibS1 : Memref sig (Dev.tc n : Thread nD τ).2.kind .vmem S64x256 .bf16).view.ref.isScScratch = false}
    {hsrc : (obS1 : Memref sig .tc .vmem S64x256 .bf16).view.WordExact} {hdst : (ibS1 : Memref sig .tc .vmem S64x256 .bf16).view.WordExact}
    {hsem : DmaTarget.Typed .vmem (.dma xrS1) (.remote (Dev.tc n : Thread nD τ) (ibS1 : Memref sig .tc .vmem S64x256 .bf16) (.dma xsS1) hsc)}
    {α : Type} {Q : α → sProp 𝕄} {k : PUnit → Prog (TpuEff nD τ sig (Elt F) Λ₀ .tc) α} {κ₁ κ₂ : ℕ}
    (fs : Buf (Elt F) (obS1.view.loc (c : Thread nD τ))) (g : Buf (Elt F) (obM.view.loc (c : Thread nD τ)))
    (hfs : fs = (obM.access sl1).write (Elt F) g (KVal.yblk16 m c 1) Finset.univ)
    (fd : Buf (Elt F) (ibS1.view.loc (xpeer c : Thread nD τ))) (O : CellTallies nD τ sig Unit) (W : Waits sig Unit) :
    iprop(cellInv ER (sched m) κ₁ (xsCell c 1) ∗ cellInv ER (sched m) κ₂ (xrCell (xpeer c) 1)
        ∗ (obS1.view.loc (c : Thread nD τ) ↦[obS1.view.set]{fullShare} fs) ∗ (ibS1.view.loc (xpeer c : Thread nD τ) ↦[ibS1.view.set]{fullShare} fd)
        ∗ owes (c : Thread nD τ) (O + tallyAt (xrCell (xpeer c) 1) () NX) W
        ∗ dutyTok ER (xsCell c 1) 0 false ∗ reached ER (xsCell c 1) 0
        ∗ dutyTok ER (xrCell (xpeer c) 1) 0 false ∗ reached ER (xrCell (xpeer c) 1) 0)
      ⊢ iprop(((cred (tallyAt (xsCell c 1) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS1 (.remote (Dev.tc n : Thread nD τ) ibS1 (.dma xsS1) hsc) (.dma xrS1) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 1) 0; rw [duties_xs]; exact Finset.mem_singleton_self _)
    (by show false ∈ (sched m).duties (xrCell (xpeer c) 1) 0; rw [duties_xr]; exact Finset.mem_singleton_self _)
    () () NX rfl (amount_xs m c 1 false) (amount_xr m (xpeer c) 1 false) O rfl (W := W)
    (by
      show _ ⊢ (sched m).payload (xsCell c 1) 0 false
      rw [payload_xs]
      show _ ⊢ iprop(∃ f : Buf (Elt F) (obS1.view.loc (c : Thread nD τ)), obS1.view.loc (c : Thread nD τ) ↦[obS1.view.set]{fullShare} f)
      iintro H; iexists fs; iexact H)
    (by
      show _ ⊢ (sched m).payload (xrCell (xpeer c) 1) 0 false
      rw [payload_xr, hfs, xrPay_1, xpeer_xpeer]
      exact pay_slot (xpeer c : Thread nD τ) (ibM.access sl1) (obM.access sl1) squeezes_S1x64x256_S64x256.numel_eq fd g (KVal.yblk16 m c 1))

/-- The copy of slot 2 from a device to its x-peer `n`. -/
theorem wp_send_x2 (c n : Dev nD) (hn : n = xpeer c)
    {hsc : (ibS2 : Memref sig (Dev.tc n : Thread nD τ).2.kind .vmem S64x256 .bf16).view.ref.isScScratch = false}
    {hsrc : (obS2 : Memref sig .tc .vmem S64x256 .bf16).view.WordExact} {hdst : (ibS2 : Memref sig .tc .vmem S64x256 .bf16).view.WordExact}
    {hsem : DmaTarget.Typed .vmem (.dma xrS2) (.remote (Dev.tc n : Thread nD τ) (ibS2 : Memref sig .tc .vmem S64x256 .bf16) (.dma xsS2) hsc)}
    {α : Type} {Q : α → sProp 𝕄} {k : PUnit → Prog (TpuEff nD τ sig (Elt F) Λ₀ .tc) α} {κ₁ κ₂ : ℕ}
    (fs : Buf (Elt F) (obS2.view.loc (c : Thread nD τ))) (g : Buf (Elt F) (obM.view.loc (c : Thread nD τ)))
    (hfs : fs = (obM.access sl2).write (Elt F) g (KVal.yblk16 m c 2) Finset.univ)
    (fd : Buf (Elt F) (ibS2.view.loc (xpeer c : Thread nD τ))) (O : CellTallies nD τ sig Unit) (W : Waits sig Unit) :
    iprop(cellInv ER (sched m) κ₁ (xsCell c 2) ∗ cellInv ER (sched m) κ₂ (xrCell (xpeer c) 2)
        ∗ (obS2.view.loc (c : Thread nD τ) ↦[obS2.view.set]{fullShare} fs) ∗ (ibS2.view.loc (xpeer c : Thread nD τ) ↦[ibS2.view.set]{fullShare} fd)
        ∗ owes (c : Thread nD τ) (O + tallyAt (xrCell (xpeer c) 2) () NX) W
        ∗ dutyTok ER (xsCell c 2) 0 false ∗ reached ER (xsCell c 2) 0
        ∗ dutyTok ER (xrCell (xpeer c) 2) 0 false ∗ reached ER (xrCell (xpeer c) 2) 0)
      ⊢ iprop(((cred (tallyAt (xsCell c 2) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS2 (.remote (Dev.tc n : Thread nD τ) ibS2 (.dma xsS2) hsc) (.dma xrS2) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 2) 0; rw [duties_xs]; exact Finset.mem_singleton_self _)
    (by show false ∈ (sched m).duties (xrCell (xpeer c) 2) 0; rw [duties_xr]; exact Finset.mem_singleton_self _)
    () () NX rfl (amount_xs m c 2 false) (amount_xr m (xpeer c) 2 false) O rfl (W := W)
    (by
      show _ ⊢ (sched m).payload (xsCell c 2) 0 false
      rw [payload_xs]
      show _ ⊢ iprop(∃ f : Buf (Elt F) (obS2.view.loc (c : Thread nD τ)), obS2.view.loc (c : Thread nD τ) ↦[obS2.view.set]{fullShare} f)
      iintro H; iexists fs; iexact H)
    (by
      show _ ⊢ (sched m).payload (xrCell (xpeer c) 2) 0 false
      rw [payload_xr, hfs, xrPay_2, xpeer_xpeer]
      exact pay_slot (xpeer c : Thread nD τ) (ibM.access sl2) (obM.access sl2) squeezes_S1x64x256_S64x256.numel_eq fd g (KVal.yblk16 m c 2))

/-- The copy of slot 3 from a device to its x-peer `n`. -/
theorem wp_send_x3 (c n : Dev nD) (hn : n = xpeer c)
    {hsc : (ibS3 : Memref sig (Dev.tc n : Thread nD τ).2.kind .vmem S64x256 .bf16).view.ref.isScScratch = false}
    {hsrc : (obS3 : Memref sig .tc .vmem S64x256 .bf16).view.WordExact} {hdst : (ibS3 : Memref sig .tc .vmem S64x256 .bf16).view.WordExact}
    {hsem : DmaTarget.Typed .vmem (.dma xrS3) (.remote (Dev.tc n : Thread nD τ) (ibS3 : Memref sig .tc .vmem S64x256 .bf16) (.dma xsS3) hsc)}
    {α : Type} {Q : α → sProp 𝕄} {k : PUnit → Prog (TpuEff nD τ sig (Elt F) Λ₀ .tc) α} {κ₁ κ₂ : ℕ}
    (fs : Buf (Elt F) (obS3.view.loc (c : Thread nD τ))) (g : Buf (Elt F) (obM.view.loc (c : Thread nD τ)))
    (hfs : fs = (obM.access sl3).write (Elt F) g (KVal.yblk16 m c 3) Finset.univ)
    (fd : Buf (Elt F) (ibS3.view.loc (xpeer c : Thread nD τ))) (O : CellTallies nD τ sig Unit) (W : Waits sig Unit) :
    iprop(cellInv ER (sched m) κ₁ (xsCell c 3) ∗ cellInv ER (sched m) κ₂ (xrCell (xpeer c) 3)
        ∗ (obS3.view.loc (c : Thread nD τ) ↦[obS3.view.set]{fullShare} fs) ∗ (ibS3.view.loc (xpeer c : Thread nD τ) ↦[ibS3.view.set]{fullShare} fd)
        ∗ owes (c : Thread nD τ) (O + tallyAt (xrCell (xpeer c) 3) () NX) W
        ∗ dutyTok ER (xsCell c 3) 0 false ∗ reached ER (xsCell c 3) 0
        ∗ dutyTok ER (xrCell (xpeer c) 3) 0 false ∗ reached ER (xrCell (xpeer c) 3) 0)
      ⊢ iprop(((cred (tallyAt (xsCell c 3) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS3 (.remote (Dev.tc n : Thread nD τ) ibS3 (.dma xsS3) hsc) (.dma xrS3) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 3) 0; rw [duties_xs]; exact Finset.mem_singleton_self _)
    (by show false ∈ (sched m).duties (xrCell (xpeer c) 3) 0; rw [duties_xr]; exact Finset.mem_singleton_self _)
    () () NX rfl (amount_xs m c 3 false) (amount_xr m (xpeer c) 3 false) O rfl (W := W)
    (by
      show _ ⊢ (sched m).payload (xsCell c 3) 0 false
      rw [payload_xs]
      show _ ⊢ iprop(∃ f : Buf (Elt F) (obS3.view.loc (c : Thread nD τ)), obS3.view.loc (c : Thread nD τ) ↦[obS3.view.set]{fullShare} f)
      iintro H; iexists fs; iexact H)
    (by
      show _ ⊢ (sched m).payload (xrCell (xpeer c) 3) 0 false
      rw [payload_xr, hfs, xrPay_3, xpeer_xpeer]
      exact pay_slot (xpeer c : Thread nD τ) (ibM.access sl3) (obM.access sl3) squeezes_S1x64x256_S64x256.numel_eq fd g (KVal.yblk16 m c 3))

/-- The copy of slot 4 from a device to its x-peer `n`. -/
theorem wp_send_x4 (c n : Dev nD) (hn : n = xpeer c)
    {hsc : (ibS4 : Memref sig (Dev.tc n : Thread nD τ).2.kind .vmem S64x256 .bf16).view.ref.isScScratch = false}
    {hsrc : (obS4 : Memref sig .tc .vmem S64x256 .bf16).view.WordExact} {hdst : (ibS4 : Memref sig .tc .vmem S64x256 .bf16).view.WordExact}
    {hsem : DmaTarget.Typed .vmem (.dma xrS4) (.remote (Dev.tc n : Thread nD τ) (ibS4 : Memref sig .tc .vmem S64x256 .bf16) (.dma xsS4) hsc)}
    {α : Type} {Q : α → sProp 𝕄} {k : PUnit → Prog (TpuEff nD τ sig (Elt F) Λ₀ .tc) α} {κ₁ κ₂ : ℕ}
    (fs : Buf (Elt F) (obS4.view.loc (c : Thread nD τ))) (g : Buf (Elt F) (obM.view.loc (c : Thread nD τ)))
    (hfs : fs = (obM.access sl4).write (Elt F) g (KVal.yblk16 m c 4) Finset.univ)
    (fd : Buf (Elt F) (ibS4.view.loc (xpeer c : Thread nD τ))) (O : CellTallies nD τ sig Unit) (W : Waits sig Unit) :
    iprop(cellInv ER (sched m) κ₁ (xsCell c 4) ∗ cellInv ER (sched m) κ₂ (xrCell (xpeer c) 4)
        ∗ (obS4.view.loc (c : Thread nD τ) ↦[obS4.view.set]{fullShare} fs) ∗ (ibS4.view.loc (xpeer c : Thread nD τ) ↦[ibS4.view.set]{fullShare} fd)
        ∗ owes (c : Thread nD τ) (O + tallyAt (xrCell (xpeer c) 4) () NX) W
        ∗ dutyTok ER (xsCell c 4) 0 false ∗ reached ER (xsCell c 4) 0
        ∗ dutyTok ER (xrCell (xpeer c) 4) 0 false ∗ reached ER (xrCell (xpeer c) 4) 0)
      ⊢ iprop(((cred (tallyAt (xsCell c 4) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS4 (.remote (Dev.tc n : Thread nD τ) ibS4 (.dma xsS4) hsc) (.dma xrS4) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 4) 0; rw [duties_xs]; exact Finset.mem_singleton_self _)
    (by show false ∈ (sched m).duties (xrCell (xpeer c) 4) 0; rw [duties_xr]; exact Finset.mem_singleton_self _)
    () () NX rfl (amount_xs m c 4 false) (amount_xr m (xpeer c) 4 false) O rfl (W := W)
    (by
      show _ ⊢ (sched m).payload (xsCell c 4) 0 false
      rw [payload_xs]
      show _ ⊢ iprop(∃ f : Buf (Elt F) (obS4.view.loc (c : Thread nD τ)), obS4.view.loc (c : Thread nD τ) ↦[obS4.view.set]{fullShare} f)
      iintro H; iexists fs; iexact H)
    (by
      show _ ⊢ (sched m).payload (xrCell (xpeer c) 4) 0 false
      rw [payload_xr, hfs, xrPay_4, xpeer_xpeer]
      exact pay_slot (xpeer c : Thread nD τ) (ibM.access sl4) (obM.access sl4) squeezes_S1x64x256_S64x256.numel_eq fd g (KVal.yblk16 m c 4))

/-- The copy of slot 5 from a device to its x-peer `n`. -/
theorem wp_send_x5 (c n : Dev nD) (hn : n = xpeer c)
    {hsc : (ibS5 : Memref sig (Dev.tc n : Thread nD τ).2.kind .vmem S64x256 .bf16).view.ref.isScScratch = false}
    {hsrc : (obS5 : Memref sig .tc .vmem S64x256 .bf16).view.WordExact} {hdst : (ibS5 : Memref sig .tc .vmem S64x256 .bf16).view.WordExact}
    {hsem : DmaTarget.Typed .vmem (.dma xrS5) (.remote (Dev.tc n : Thread nD τ) (ibS5 : Memref sig .tc .vmem S64x256 .bf16) (.dma xsS5) hsc)}
    {α : Type} {Q : α → sProp 𝕄} {k : PUnit → Prog (TpuEff nD τ sig (Elt F) Λ₀ .tc) α} {κ₁ κ₂ : ℕ}
    (fs : Buf (Elt F) (obS5.view.loc (c : Thread nD τ))) (g : Buf (Elt F) (obM.view.loc (c : Thread nD τ)))
    (hfs : fs = (obM.access sl5).write (Elt F) g (KVal.yblk16 m c 5) Finset.univ)
    (fd : Buf (Elt F) (ibS5.view.loc (xpeer c : Thread nD τ))) (O : CellTallies nD τ sig Unit) (W : Waits sig Unit) :
    iprop(cellInv ER (sched m) κ₁ (xsCell c 5) ∗ cellInv ER (sched m) κ₂ (xrCell (xpeer c) 5)
        ∗ (obS5.view.loc (c : Thread nD τ) ↦[obS5.view.set]{fullShare} fs) ∗ (ibS5.view.loc (xpeer c : Thread nD τ) ↦[ibS5.view.set]{fullShare} fd)
        ∗ owes (c : Thread nD τ) (O + tallyAt (xrCell (xpeer c) 5) () NX) W
        ∗ dutyTok ER (xsCell c 5) 0 false ∗ reached ER (xsCell c 5) 0
        ∗ dutyTok ER (xrCell (xpeer c) 5) 0 false ∗ reached ER (xrCell (xpeer c) 5) 0)
      ⊢ iprop(((cred (tallyAt (xsCell c 5) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS5 (.remote (Dev.tc n : Thread nD τ) ibS5 (.dma xsS5) hsc) (.dma xrS5) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 5) 0; rw [duties_xs]; exact Finset.mem_singleton_self _)
    (by show false ∈ (sched m).duties (xrCell (xpeer c) 5) 0; rw [duties_xr]; exact Finset.mem_singleton_self _)
    () () NX rfl (amount_xs m c 5 false) (amount_xr m (xpeer c) 5 false) O rfl (W := W)
    (by
      show _ ⊢ (sched m).payload (xsCell c 5) 0 false
      rw [payload_xs]
      show _ ⊢ iprop(∃ f : Buf (Elt F) (obS5.view.loc (c : Thread nD τ)), obS5.view.loc (c : Thread nD τ) ↦[obS5.view.set]{fullShare} f)
      iintro H; iexists fs; iexact H)
    (by
      show _ ⊢ (sched m).payload (xrCell (xpeer c) 5) 0 false
      rw [payload_xr, hfs, xrPay_5, xpeer_xpeer]
      exact pay_slot (xpeer c : Thread nD τ) (ibM.access sl5) (obM.access sl5) squeezes_S1x64x256_S64x256.numel_eq fd g (KVal.yblk16 m c 5))

/-- The copy of slot 6 from a device to its x-peer `n`. -/
theorem wp_send_x6 (c n : Dev nD) (hn : n = xpeer c)
    {hsc : (ibS6 : Memref sig (Dev.tc n : Thread nD τ).2.kind .vmem S64x256 .bf16).view.ref.isScScratch = false}
    {hsrc : (obS6 : Memref sig .tc .vmem S64x256 .bf16).view.WordExact} {hdst : (ibS6 : Memref sig .tc .vmem S64x256 .bf16).view.WordExact}
    {hsem : DmaTarget.Typed .vmem (.dma xrS6) (.remote (Dev.tc n : Thread nD τ) (ibS6 : Memref sig .tc .vmem S64x256 .bf16) (.dma xsS6) hsc)}
    {α : Type} {Q : α → sProp 𝕄} {k : PUnit → Prog (TpuEff nD τ sig (Elt F) Λ₀ .tc) α} {κ₁ κ₂ : ℕ}
    (fs : Buf (Elt F) (obS6.view.loc (c : Thread nD τ))) (g : Buf (Elt F) (obM.view.loc (c : Thread nD τ)))
    (hfs : fs = (obM.access sl6).write (Elt F) g (KVal.yblk16 m c 6) Finset.univ)
    (fd : Buf (Elt F) (ibS6.view.loc (xpeer c : Thread nD τ))) (O : CellTallies nD τ sig Unit) (W : Waits sig Unit) :
    iprop(cellInv ER (sched m) κ₁ (xsCell c 6) ∗ cellInv ER (sched m) κ₂ (xrCell (xpeer c) 6)
        ∗ (obS6.view.loc (c : Thread nD τ) ↦[obS6.view.set]{fullShare} fs) ∗ (ibS6.view.loc (xpeer c : Thread nD τ) ↦[ibS6.view.set]{fullShare} fd)
        ∗ owes (c : Thread nD τ) (O + tallyAt (xrCell (xpeer c) 6) () NX) W
        ∗ dutyTok ER (xsCell c 6) 0 false ∗ reached ER (xsCell c 6) 0
        ∗ dutyTok ER (xrCell (xpeer c) 6) 0 false ∗ reached ER (xrCell (xpeer c) 6) 0)
      ⊢ iprop(((cred (tallyAt (xsCell c 6) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS6 (.remote (Dev.tc n : Thread nD τ) ibS6 (.dma xsS6) hsc) (.dma xrS6) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 6) 0; rw [duties_xs]; exact Finset.mem_singleton_self _)
    (by show false ∈ (sched m).duties (xrCell (xpeer c) 6) 0; rw [duties_xr]; exact Finset.mem_singleton_self _)
    () () NX rfl (amount_xs m c 6 false) (amount_xr m (xpeer c) 6 false) O rfl (W := W)
    (by
      show _ ⊢ (sched m).payload (xsCell c 6) 0 false
      rw [payload_xs]
      show _ ⊢ iprop(∃ f : Buf (Elt F) (obS6.view.loc (c : Thread nD τ)), obS6.view.loc (c : Thread nD τ) ↦[obS6.view.set]{fullShare} f)
      iintro H; iexists fs; iexact H)
    (by
      show _ ⊢ (sched m).payload (xrCell (xpeer c) 6) 0 false
      rw [payload_xr, hfs, xrPay_6, xpeer_xpeer]
      exact pay_slot (xpeer c : Thread nD τ) (ibM.access sl6) (obM.access sl6) squeezes_S1x64x256_S64x256.numel_eq fd g (KVal.yblk16 m c 6))

/-- The copy of slot 7 from a device to its x-peer `n`. -/
theorem wp_send_x7 (c n : Dev nD) (hn : n = xpeer c)
    {hsc : (ibS7 : Memref sig (Dev.tc n : Thread nD τ).2.kind .vmem S64x256 .bf16).view.ref.isScScratch = false}
    {hsrc : (obS7 : Memref sig .tc .vmem S64x256 .bf16).view.WordExact} {hdst : (ibS7 : Memref sig .tc .vmem S64x256 .bf16).view.WordExact}
    {hsem : DmaTarget.Typed .vmem (.dma xrS7) (.remote (Dev.tc n : Thread nD τ) (ibS7 : Memref sig .tc .vmem S64x256 .bf16) (.dma xsS7) hsc)}
    {α : Type} {Q : α → sProp 𝕄} {k : PUnit → Prog (TpuEff nD τ sig (Elt F) Λ₀ .tc) α} {κ₁ κ₂ : ℕ}
    (fs : Buf (Elt F) (obS7.view.loc (c : Thread nD τ))) (g : Buf (Elt F) (obM.view.loc (c : Thread nD τ)))
    (hfs : fs = (obM.access sl7).write (Elt F) g (KVal.yblk16 m c 7) Finset.univ)
    (fd : Buf (Elt F) (ibS7.view.loc (xpeer c : Thread nD τ))) (O : CellTallies nD τ sig Unit) (W : Waits sig Unit) :
    iprop(cellInv ER (sched m) κ₁ (xsCell c 7) ∗ cellInv ER (sched m) κ₂ (xrCell (xpeer c) 7)
        ∗ (obS7.view.loc (c : Thread nD τ) ↦[obS7.view.set]{fullShare} fs) ∗ (ibS7.view.loc (xpeer c : Thread nD τ) ↦[ibS7.view.set]{fullShare} fd)
        ∗ owes (c : Thread nD τ) (O + tallyAt (xrCell (xpeer c) 7) () NX) W
        ∗ dutyTok ER (xsCell c 7) 0 false ∗ reached ER (xsCell c 7) 0
        ∗ dutyTok ER (xrCell (xpeer c) 7) 0 false ∗ reached ER (xrCell (xpeer c) 7) 0)
      ⊢ iprop(((cred (tallyAt (xsCell c 7) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS7 (.remote (Dev.tc n : Thread nD τ) ibS7 (.dma xsS7) hsc) (.dma xrS7) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 7) 0; rw [duties_xs]; exact Finset.mem_singleton_self _)
    (by show false ∈ (sched m).duties (xrCell (xpeer c) 7) 0; rw [duties_xr]; exact Finset.mem_singleton_self _)
    () () NX rfl (amount_xs m c 7 false) (amount_xr m (xpeer c) 7 false) O rfl (W := W)
    (by
      show _ ⊢ (sched m).payload (xsCell c 7) 0 false
      rw [payload_xs]
      show _ ⊢ iprop(∃ f : Buf (Elt F) (obS7.view.loc (c : Thread nD τ)), obS7.view.loc (c : Thread nD τ) ↦[obS7.view.set]{fullShare} f)
      iintro H; iexists fs; iexact H)
    (by
      show _ ⊢ (sched m).payload (xrCell (xpeer c) 7) 0 false
      rw [payload_xr, hfs, xrPay_7, xpeer_xpeer]
      exact pay_slot (xpeer c : Thread nD τ) (ibM.access sl7) (obM.access sl7) squeezes_S1x64x256_S64x256.numel_eq fd g (KVal.yblk16 m c 7))

end Cert.KernelIdeal.KSend

end
-- ==== Proof.KClose.lean ====
/-
  Closing a device's own cells when its body ends: a cell whose every duty has been consumed, or that never had one,
  has its counter at zero, and the counter is the device's again.
-/
import proofs.«900482_g7700000000000483_dist_ssm_v7x_xy2x2_y_b4_s256_d256_n16_f32_1_alg».proof.Proof.KProto
import Idealize.ShloMosaic.Lib.Tactic

noncomputable section

namespace Cert.KernelIdeal.KClose

open Cert.KernelIdeal Cert.KernelIdeal.Gen Cert.KernelIdeal.KProto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The eighteen own cells closed at the end of the body on a device with my = 0: every cell the device waited on stands
    at its second round with nothing consumed, the y cell nobody pays at its first; their counters at zero are the device's again. -/
theorem close_even (K : Dev nD × Fin 19 → ℕ) (c : Dev nD) (h : c.val % 2 = 0) :
    iprop(records m K
      ∗ atPos ER (ysCell c) (0 + 1) ∅ 0
      ∗ atPos ER (yrCell c) (0) ∅ 0
      ∗ atPos ER ((c : Thread nD τ), .dma xsS0) (0 + 1) ∅ 0
      ∗ atPos ER ((c : Thread nD τ), .dma xsS1) (0 + 1) ∅ 0
      ∗ atPos ER ((c : Thread nD τ), .dma xsS2) (0 + 1) ∅ 0
      ∗ atPos ER ((c : Thread nD τ), .dma xsS3) (0 + 1) ∅ 0
      ∗ atPos ER ((c : Thread nD τ), .dma xsS4) (0 + 1) ∅ 0
      ∗ atPos ER ((c : Thread nD τ), .dma xsS5) (0 + 1) ∅ 0
      ∗ atPos ER ((c : Thread nD τ), .dma xsS6) (0 + 1) ∅ 0
      ∗ atPos ER ((c : Thread nD τ), .dma xsS7) (0 + 1) ∅ 0
      ∗ atPos ER ((c : Thread nD τ), .dma xrS0) (0 + 1) ∅ 0
      ∗ atPos ER ((c : Thread nD τ), .dma xrS1) (0 + 1) ∅ 0
      ∗ atPos ER ((c : Thread nD τ), .dma xrS2) (0 + 1) ∅ 0
      ∗ atPos ER ((c : Thread nD τ), .dma xrS3) (0 + 1) ∅ 0
      ∗ atPos ER ((c : Thread nD τ), .dma xrS4) (0 + 1) ∅ 0
      ∗ atPos ER ((c : Thread nD τ), .dma xrS5) (0 + 1) ∅ 0
      ∗ atPos ER ((c : Thread nD τ), .dma xrS6) (0 + 1) ∅ 0
      ∗ atPos ER ((c : Thread nD τ), .dma xrS7) (0 + 1) ∅ 0)
      ⊢ |={Set.univ}=> ownZero c := by
  iintro ⟨#HR, Hys, Hyr, Hxs0, Hxs1, Hxs2, Hxs3, Hxs4, Hxs5, Hxs6, Hxs7, Hxr0, Hxr1, Hxr2, Hxr3, Hxr4, Hxr5, Hxr6, Hxr7⟩
  imod (Rounds.cell_close ER (sched m) (Set.mem_univ _) (fun h => h) (R := 0 + 1) (duties_later m (ysCell c))) $$ [Hys] with ZHys
  · isplitr; · iapply (inv_ys m K c); iexact HR
    iexact Hys
  imod (Rounds.cell_close ER (sched m) (Set.mem_univ _) (fun h => h) (R := 0) (duties_yr_none m c h)) $$ [Hyr] with ZHyr
  · isplitr; · iapply (inv_yr m K c); iexact HR
    iexact Hyr
  imod (Rounds.cell_close ER (sched m) (Set.mem_univ _) (fun h => h) (R := 0 + 1) (duties_later m (xsCell c 0))) $$ [Hxs0] with ZHxs0
  · isplitr; · iapply (inv_xs m K c 0); iexact HR
    iexact Hxs0
  imod (Rounds.cell_close ER (sched m) (Set.mem_univ _) (fun h => h) (R := 0 + 1) (duties_later m (xsCell c 1))) $$ [Hxs1] with ZHxs1
  · isplitr; · iapply (inv_xs m K c 1); iexact HR
    iexact Hxs1
  imod (Rounds.cell_close ER (sched m) (Set.mem_univ _) (fun h => h) (R := 0 + 1) (duties_later m (xsCell c 2))) $$ [Hxs2] with ZHxs2
  · isplitr; · iapply (inv_xs m K c 2); iexact HR
    iexact Hxs2
  imod (Rounds.cell_close ER (sched m) (Set.mem_univ _) (fun h => h) (R := 0 + 1) (duties_later m (xsCell c 3))) $$ [Hxs3] with ZHxs3
  · isplitr; · iapply (inv_xs m K c 3); iexact HR
    iexact Hxs3
  imod (Rounds.cell_close ER (sched m) (Set.mem_univ _) (fun h => h) (R := 0 + 1) (duties_later m (xsCell c 4))) $$ [Hxs4] with ZHxs4
  · isplitr; · iapply (inv_xs m K c 4); iexact HR
    iexact Hxs4
  imod (Rounds.cell_close ER (sched m) (Set.mem_univ _) (fun h => h) (R := 0 + 1) (duties_later m (xsCell c 5))) $$ [Hxs5] with ZHxs5
  · isplitr; · iapply (inv_xs m K c 5); iexact HR
    iexact Hxs5
  imod (Rounds.cell_close ER (sched m) (Set.mem_univ _) (fun h => h) (R := 0 + 1) (duties_later m (xsCell c 6))) $$ [Hxs6] with ZHxs6
  · isplitr; · iapply (inv_xs m K c 6); iexact HR
    iexact Hxs6
  imod (Rounds.cell_close ER (sched m) (Set.mem_univ _) (fun h => h) (R := 0 + 1) (duties_later m (xsCell c 7))) $$ [Hxs7] with ZHxs7
  · isplitr; · iapply (inv_xs m K c 7); iexact HR
    iexact Hxs7
  imod (Rounds.cell_close ER (sched m) (Set.mem_univ _) (fun h => h) (R := 0 + 1) (duties_later m (xrCell c 0))) $$ [Hxr0] with ZHxr0
  · isplitr; · iapply (inv_xr m K c 0); iexact HR
    iexact Hxr0
  imod (Rounds.cell_close ER (sched m) (Set.mem_univ _) (fun h => h) (R := 0 + 1) (duties_later m (xrCell c 1))) $$ [Hxr1] with ZHxr1
  · isplitr; · iapply (inv_xr m K c 1); iexact HR
    iexact Hxr1
  imod (Rounds.cell_close ER (sched m) (Set.mem_univ _) (fun h => h) (R := 0 + 1) (duties_later m (xrCell c 2))) $$ [Hxr2] with ZHxr2
  · isplitr; · iapply (inv_xr m K c 2); iexact HR
    iexact Hxr2
  imod (Rounds.cell_close ER (sched m) (Set.mem_univ _) (fun h => h) (R := 0 + 1) (duties_later m (xrCell c 3))) $$ [Hxr3] with ZHxr3
  · isplitr; · iapply (inv_xr m K c 3); iexact HR
    iexact Hxr3
  imod (Rounds.cell_close ER (sched m) (Set.mem_univ _) (fun h => h) (R := 0 + 1) (duties_later m (xrCell c 4))) $$ [Hxr4] with ZHxr4
  · isplitr; · iapply (inv_xr m K c 4); iexact HR
    iexact Hxr4
  imod (Rounds.cell_close ER (sched m) (Set.mem_univ _) (fun h => h) (R := 0 + 1) (duties_later m (xrCell c 5))) $$ [Hxr5] with ZHxr5
  · isplitr; · iapply (inv_xr m K c 5); iexact HR
    iexact Hxr5
  imod (Rounds.cell_close ER (sched m) (Set.mem_univ _) (fun h => h) (R := 0 + 1) (duties_later m (xrCell c 6))) $$ [Hxr6] with ZHxr6
  · isplitr; · iapply (inv_xr m K c 6); iexact HR
    iexact Hxr6
  imod (Rounds.cell_close ER (sched m) (Set.mem_univ _) (fun h => h) (R := 0 + 1) (duties_later m (xrCell c 7))) $$ [Hxr7] with ZHxr7
  · isplitr; · iapply (inv_xr m K c 7); iexact HR
    iexact Hxr7
  imodintro
  unfold ownZero
  isplitl [ZHys]; · iexact ZHys
  isplitl [ZHyr]; · iexact ZHyr
  isplitl [ZHxs0]; · iexact ZHxs0
  isplitl [ZHxs1]; · iexact ZHxs1
  isplitl [ZHxs2]; · iexact ZHxs2
  isplitl [ZHxs3]; · iexact ZHxs3
  isplitl [ZHxs4]; · iexact ZHxs4
  isplitl [ZHxs5]; · iexact ZHxs5
  isplitl [ZHxs6]; · iexact ZHxs6
  isplitl [ZHxs7]; · iexact ZHxs7
  isplitl [ZHxr0]; · iexact ZHxr0
  isplitl [ZHxr1]; · iexact ZHxr1
  isplitl [ZHxr2]; · iexact ZHxr2
  isplitl [ZHxr3]; · iexact ZHxr3
  isplitl [ZHxr4]; · iexact ZHxr4
  isplitl [ZHxr5]; · iexact ZHxr5
  isplitl [ZHxr6]; · iexact ZHxr6
  iexact ZHxr7

/-- The eighteen own cells closed at the end of the body on a device with my = 1: every cell the device waited on stands
    at its second round with nothing consumed, the y cell nobody pays at its first; their counters at zero are the device's again. -/
theorem close_odd (K : Dev nD × Fin 19 → ℕ) (c : Dev nD) (h : c.val % 2 = 1) :
    iprop(records m K
      ∗ atPos ER (ysCell c) (0) ∅ 0
      ∗ atPos ER (yrCell c) (0 + 1) ∅ 0
      ∗ atPos ER ((c : Thread nD τ), .dma xsS0) (0 + 1) ∅ 0
      ∗ atPos ER ((c : Thread nD τ), .dma xsS1) (0 + 1) ∅ 0
      ∗ atPos ER ((c : Thread nD τ), .dma xsS2) (0 + 1) ∅ 0
      ∗ atPos ER ((c : Thread nD τ), .dma xsS3) (0 + 1) ∅ 0
      ∗ atPos ER ((c : Thread nD τ), .dma xsS4) (0 + 1) ∅ 0
      ∗ atPos ER ((c : Thread nD τ), .dma xsS5) (0 + 1) ∅ 0
      ∗ atPos ER ((c : Thread nD τ), .dma xsS6) (0 + 1) ∅ 0
      ∗ atPos ER ((c : Thread nD τ), .dma xsS7) (0 + 1) ∅ 0
      ∗ atPos ER ((c : Thread nD τ), .dma xrS0) (0 + 1) ∅ 0
      ∗ atPos ER ((c : Thread nD τ), .dma xrS1) (0 + 1) ∅ 0
      ∗ atPos ER ((c : Thread nD τ), .dma xrS2) (0 + 1) ∅ 0
      ∗ atPos ER ((c : Thread nD τ), .dma xrS3) (0 + 1) ∅ 0
      ∗ atPos ER ((c : Thread nD τ), .dma xrS4) (0 + 1) ∅ 0
      ∗ atPos ER ((c : Thread nD τ), .dma xrS5) (0 + 1) ∅ 0
      ∗ atPos ER ((c : Thread nD τ), .dma xrS6) (0 + 1) ∅ 0
      ∗ atPos ER ((c : Thread nD τ), .dma xrS7) (0 + 1) ∅ 0)
      ⊢ |={Set.univ}=> ownZero c := by
  iintro ⟨#HR, Hys, Hyr, Hxs0, Hxs1, Hxs2, Hxs3, Hxs4, Hxs5, Hxs6, Hxs7, Hxr0, Hxr1, Hxr2, Hxr3, Hxr4, Hxr5, Hxr6, Hxr7⟩
  imod (Rounds.cell_close ER (sched m) (Set.mem_univ _) (fun h => h) (R := 0) (duties_ys_none m c h)) $$ [Hys] with ZHys
  · isplitr; · iapply (inv_ys m K c); iexact HR
    iexact Hys
  imod (Rounds.cell_close ER (sched m) (Set.mem_univ _) (fun h => h) (R := 0 + 1) (duties_later m (yrCell c))) $$ [Hyr] with ZHyr
  · isplitr; · iapply (inv_yr m K c); iexact HR
    iexact Hyr
  imod (Rounds.cell_close ER (sched m) (Set.mem_univ _) (fun h => h) (R := 0 + 1) (duties_later m (xsCell c 0))) $$ [Hxs0] with ZHxs0
  · isplitr; · iapply (inv_xs m K c 0); iexact HR
    iexact Hxs0
  imod (Rounds.cell_close ER (sched m) (Set.mem_univ _) (fun h => h) (R := 0 + 1) (duties_later m (xsCell c 1))) $$ [Hxs1] with ZHxs1
  · isplitr; · iapply (inv_xs m K c 1); iexact HR
    iexact Hxs1
  imod (Rounds.cell_close ER (sched m) (Set.mem_univ _) (fun h => h) (R := 0 + 1) (duties_later m (xsCell c 2))) $$ [Hxs2] with ZHxs2
  · isplitr; · iapply (inv_xs m K c 2); iexact HR
    iexact Hxs2
  imod (Rounds.cell_close ER (sched m) (Set.mem_univ _) (fun h => h) (R := 0 + 1) (duties_later m (xsCell c 3))) $$ [Hxs3] with ZHxs3
  · isplitr; · iapply (inv_xs m K c 3); iexact HR
    iexact Hxs3
  imod (Rounds.cell_close ER (sched m) (Set.mem_univ _) (fun h => h) (R := 0 + 1) (duties_later m (xsCell c 4))) $$ [Hxs4] with ZHxs4
  · isplitr; · iapply (inv_xs m K c 4); iexact HR
    iexact Hxs4
  imod (Rounds.cell_close ER (sched m) (Set.mem_univ _) (fun h => h) (R := 0 + 1) (duties_later m (xsCell c 5))) $$ [Hxs5] with ZHxs5
  · isplitr; · iapply (inv_xs m K c 5); iexact HR
    iexact Hxs5
  imod (Rounds.cell_close ER (sched m) (Set.mem_univ _) (fun h => h) (R := 0 + 1) (duties_later m (xsCell c 6))) $$ [Hxs6] with ZHxs6
  · isplitr; · iapply (inv_xs m K c 6); iexact HR
    iexact Hxs6
  imod (Rounds.cell_close ER (sched m) (Set.mem_univ _) (fun h => h) (R := 0 + 1) (duties_later m (xsCell c 7))) $$ [Hxs7] with ZHxs7
  · isplitr; · iapply (inv_xs m K c 7); iexact HR
    iexact Hxs7
  imod (Rounds.cell_close ER (sched m) (Set.mem_univ _) (fun h => h) (R := 0 + 1) (duties_later m (xrCell c 0))) $$ [Hxr0] with ZHxr0
  · isplitr; · iapply (inv_xr m K c 0); iexact HR
    iexact Hxr0
  imod (Rounds.cell_close ER (sched m) (Set.mem_univ _) (fun h => h) (R := 0 + 1) (duties_later m (xrCell c 1))) $$ [Hxr1] with ZHxr1
  · isplitr; · iapply (inv_xr m K c 1); iexact HR
    iexact Hxr1
  imod (Rounds.cell_close ER (sched m) (Set.mem_univ _) (fun h => h) (R := 0 + 1) (duties_later m (xrCell c 2))) $$ [Hxr2] with ZHxr2
  · isplitr; · iapply (inv_xr m K c 2); iexact HR
    iexact Hxr2
  imod (Rounds.cell_close ER (sched m) (Set.mem_univ _) (fun h => h) (R := 0 + 1) (duties_later m (xrCell c 3))) $$ [Hxr3] with ZHxr3
  · isplitr; · iapply (inv_xr m K c 3); iexact HR
    iexact Hxr3
  imod (Rounds.cell_close ER (sched m) (Set.mem_univ _) (fun h => h) (R := 0 + 1) (duties_later m (xrCell c 4))) $$ [Hxr4] with ZHxr4
  · isplitr; · iapply (inv_xr m K c 4); iexact HR
    iexact Hxr4
  imod (Rounds.cell_close ER (sched m) (Set.mem_univ _) (fun h => h) (R := 0 + 1) (duties_later m (xrCell c 5))) $$ [Hxr5] with ZHxr5
  · isplitr; · iapply (inv_xr m K c 5); iexact HR
    iexact Hxr5
  imod (Rounds.cell_close ER (sched m) (Set.mem_univ _) (fun h => h) (R := 0 + 1) (duties_later m (xrCell c 6))) $$ [Hxr6] with ZHxr6
  · isplitr; · iapply (inv_xr m K c 6); iexact HR
    iexact Hxr6
  imod (Rounds.cell_close ER (sched m) (Set.mem_univ _) (fun h => h) (R := 0 + 1) (duties_later m (xrCell c 7))) $$ [Hxr7] with ZHxr7
  · isplitr; · iapply (inv_xr m K c 7); iexact HR
    iexact Hxr7
  imodintro
  unfold ownZero
  isplitl [ZHys]; · iexact ZHys
  isplitl [ZHyr]; · iexact ZHyr
  isplitl [ZHxs0]; · iexact ZHxs0
  isplitl [ZHxs1]; · iexact ZHxs1
  isplitl [ZHxs2]; · iexact ZHxs2
  isplitl [ZHxs3]; · iexact ZHxs3
  isplitl [ZHxs4]; · iexact ZHxs4
  isplitl [ZHxs5]; · iexact ZHxs5
  isplitl [ZHxs6]; · iexact ZHxs6
  isplitl [ZHxs7]; · iexact ZHxs7
  isplitl [ZHxr0]; · iexact ZHxr0
  isplitl [ZHxr1]; · iexact ZHxr1
  isplitl [ZHxr2]; · iexact ZHxr2
  isplitl [ZHxr3]; · iexact ZHxr3
  isplitl [ZHxr4]; · iexact ZHxr4
  isplitl [ZHxr5]; · iexact ZHxr5
  isplitl [ZHxr6]; · iexact ZHxr6
  iexact ZHxr7

end Cert.KernelIdeal.KClose

end
-- ==== Proof.KBodyEven.lean ====
/-
  The body at a symbolic device with my = 0: from what the launch hands the device (every cell's invariant, its
  positions, the tokens of the duties it pays, its credit, what it owes, the staged arguments, the scratch buffers) to
  the staged arguments unchanged, the output staging buffer at its named contents, nothing owed and its own semaphores
  at zero. The entry handshake, the local scan, the state copy to the y-peer, the eight row blocks with their copies to
  the x-peer, the waits and the last store, in program order.
-/
import proofs.«900482_g7700000000000483_dist_ssm_v7x_xy2x2_y_b4_s256_d256_n16_f32_1_alg».proof.Proof.KBodyCommon
import proofs.«900482_g7700000000000483_dist_ssm_v7x_xy2x2_y_b4_s256_d256_n16_f32_1_alg».proof.Proof.KBodyGeo
import proofs.«900482_g7700000000000483_dist_ssm_v7x_xy2x2_y_b4_s256_d256_n16_f32_1_alg».proof.Proof.KSend
import proofs.«900482_g7700000000000483_dist_ssm_v7x_xy2x2_y_b4_s256_d256_n16_f32_1_alg».proof.Proof.KClose
import Idealize.ShloMosaic.Lib.HeldBySlice

set_option maxRecDepth 65536

noncomputable section
namespace Cert.KernelIdeal.KBodyEven

open Cert.KernelIdeal Cert.KernelIdeal.Gen
open Idealize.ShloMosaic Idealize.ShloMosaic.TcCoe Idealize.ShloMosaic.Tactic
open Idealize.SL Idealize.SL.RA Idealize.SL.BI
open Idealize.SL.BI (bigSep bigSepL bigSep_univ_eq_bigSepL)
open scoped Idealize.SL.BI
open Idealize.SL.BI.BIBase Idealize.SL.BI.Laws Idealize.SL.ProofMode Idealize.SL.Sem
open Idealize.ShloMosaic.Rounds
open Cert.KernelIdeal.KVal (ypeer xpeer)
open Cert.KernelIdeal.KProto (UB UU EP ER hsM hiM obM ibM barS ysS yrS barCell ysCell yrCell xsCell xrCell sched)

variable {F : FTy → Type} [FloatOps F]

local notation "𝕄" => MT nD τ sig Unit (Elt F) ℕ UU ℕ

variable (m : (ℓ : Loc nD τ sig) → Buf (Elt F) ℓ)

attribute [local sl_canon] KVal.dev1_eq KVal.dev2_eq KVal.dev4_eq KVal.dev5_eq KVal.dev6_eq KVal.dev7_eq KVal.dev8_eq KVal.dev9_eq KVal.dev10_eq KVal.dev11_eq

set_option maxHeartbeats 8000000 in
theorem sound_even (K : Dev nD × Fin 19 → ℕ) (c : Dev nD) (hc : c.val % 2 = 0) :
    KProto.bodyPre m K c ⊢ wp frame (wpE (defs₀ (F := F)) KProto.𝒱₀ c none) Set.univ (Gen.bodyAt0 (F := F) Gen.t0_0)
      (fun _ => KProto.bodyPost m c) := by
  have hy1 : (ypeer c).val % 2 = 1 := by rw [KVal.ypeer_mod]; omega
  have hcond : k0_cond1 c = 1#1 := by rw [KVal.cond1_eq, if_pos hc]
  have hdev3 : (⟨k0_dev3 c, Gen.k0_dev3_lt c hcond⟩ : Dev nD) = ypeer c := KVal.dev3_eq c hcond
  have h159 := KBodyCommon.v159_even c hc
  have h501 := KBodyCommon.v501_even c hc
  have hv170 : KVal.v170 m c = Gen.k0_pay21 (KVal.v22 m c) (KVal.v121 m c) (KVal.v125 m c) (KVal.v126 m c) (KVal.v127 m c)
      ((Memref.whole cc0_scratch2).view.readCov
        [⟨Rect.unit (s := S2x16x256) ![0, 0, 0] S2x16x256.size Gen.inb_S2x16x256_S2x16x256_0_0_0, Gen.k0_pay18 (F := F)⟩]
        (Rect.unit (s := S2x16x256) ![0, 0, 0] S2x16x256.size Gen.inb_S2x16x256_S2x16x256_0_0_0).toLoadRect) := by
    unfold KVal.v170 KVal.v160; rw [if_pos hc]
  have hmwb := KProto.mayWait_bar (F := F) c
  rw [KProto.O₂_even hc] at hmwb; unfold KProto.OX at hmwb
  unfold Gen.bodyAt0
  unfold KProto.bodyPre KProto.linear KProto.payToks KProto.creds KProto.stagedIn KProto.scratch KProto.O₀ KProto.O₁
  rw [KProto.O₂_even hc]
  unfold KProto.OX
  iintro ⟨#Hrec, ⟨Pbar, Pys, Pyr, Pxs0, Pxs1, Pxs2, Pxs3, Pxs4, Pxs5, Pxs6, Pxs7, Pxr0, Pxr1, Pxr2, Pxr3, Pxr4, Pxr5, Pxr6, Pxr7⟩, ⟨Tby, Tbx, Tys, Tyr, Txs0, Txs1, Txs2, Txs3, Txs4, Txs5, Txs6, Txs7, Txr0, Txr1, Txr2, Txr3, Txr4, Txr5, Txr6, Txr7⟩, ⟨Cbar, Cyr, Cxr0, Cxr1, Cxr2, Cxr3, Cxr4, Cxr5, Cxr6, Cxr7⟩, #Hlev, ⟨%W, HO⟩, ⟨Hx, Ha, Hb, Hcc⟩, ⟨%fo, Ho⟩, ⟨⟨%fh, Hh⟩, ⟨%fs, Hs⟩, ⟨%fi, Hi⟩, ⟨%fob, Hob⟩, ⟨%fib, Hib⟩⟩⟩
  -- the invariants and first rounds of the cells the body touches: its own nineteen, and its peers' it pays into
  ihave #Ibar := (KProto.inv_bar m K c) $$ Hrec
  ihave #Iys := (KProto.inv_ys m K c) $$ Hrec
  ihave #Iyr := (KProto.inv_yr m K c) $$ Hrec
  ihave #Ixs0 := (KProto.inv_xs m K c 0) $$ Hrec
  ihave #Ixr0 := (KProto.inv_xr m K c 0) $$ Hrec
  ihave #Jxr0 := (KProto.inv_xr m K (xpeer c) 0) $$ Hrec
  ihave #Ixs1 := (KProto.inv_xs m K c 1) $$ Hrec
  ihave #Ixr1 := (KProto.inv_xr m K c 1) $$ Hrec
  ihave #Jxr1 := (KProto.inv_xr m K (xpeer c) 1) $$ Hrec
  ihave #Ixs2 := (KProto.inv_xs m K c 2) $$ Hrec
  ihave #Ixr2 := (KProto.inv_xr m K c 2) $$ Hrec
  ihave #Jxr2 := (KProto.inv_xr m K (xpeer c) 2) $$ Hrec
  ihave #Ixs3 := (KProto.inv_xs m K c 3) $$ Hrec
  ihave #Ixr3 := (KProto.inv_xr m K c 3) $$ Hrec
  ihave #Jxr3 := (KProto.inv_xr m K (xpeer c) 3) $$ Hrec
  ihave #Ixs4 := (KProto.inv_xs m K c 4) $$ Hrec
  ihave #Ixr4 := (KProto.inv_xr m K c 4) $$ Hrec
  ihave #Jxr4 := (KProto.inv_xr m K (xpeer c) 4) $$ Hrec
  ihave #Ixs5 := (KProto.inv_xs m K c 5) $$ Hrec
  ihave #Ixr5 := (KProto.inv_xr m K c 5) $$ Hrec
  ihave #Jxr5 := (KProto.inv_xr m K (xpeer c) 5) $$ Hrec
  ihave #Ixs6 := (KProto.inv_xs m K c 6) $$ Hrec
  ihave #Ixr6 := (KProto.inv_xr m K c 6) $$ Hrec
  ihave #Jxr6 := (KProto.inv_xr m K (xpeer c) 6) $$ Hrec
  ihave #Ixs7 := (KProto.inv_xs m K c 7) $$ Hrec
  ihave #Ixr7 := (KProto.inv_xr m K c 7) $$ Hrec
  ihave #Jxr7 := (KProto.inv_xr m K (xpeer c) 7) $$ Hrec
  ihave #Jby := (KProto.inv_bar m K (ypeer c)) $$ Hrec
  ihave #Jbx := (KProto.inv_bar m K (xpeer c)) $$ Hrec
  ihave #Jyr := (KProto.inv_yr m K (ypeer c)) $$ Hrec
  ihave #Rbar := (KProto.reached_bar m K c) $$ Hrec
  ihave #Rys := (KProto.reached_ys m K c) $$ Hrec
  ihave #Ryr := (KProto.reached_yr m K c) $$ Hrec
  ihave #Rxs0 := (KProto.reached_xs m K c 0) $$ Hrec
  ihave #Rxr0 := (KProto.reached_xr m K c 0) $$ Hrec
  ihave #Sxr0 := (KProto.reached_xr m K (xpeer c) 0) $$ Hrec
  ihave #Rxs1 := (KProto.reached_xs m K c 1) $$ Hrec
  ihave #Rxr1 := (KProto.reached_xr m K c 1) $$ Hrec
  ihave #Sxr1 := (KProto.reached_xr m K (xpeer c) 1) $$ Hrec
  ihave #Rxs2 := (KProto.reached_xs m K c 2) $$ Hrec
  ihave #Rxr2 := (KProto.reached_xr m K c 2) $$ Hrec
  ihave #Sxr2 := (KProto.reached_xr m K (xpeer c) 2) $$ Hrec
  ihave #Rxs3 := (KProto.reached_xs m K c 3) $$ Hrec
  ihave #Rxr3 := (KProto.reached_xr m K c 3) $$ Hrec
  ihave #Sxr3 := (KProto.reached_xr m K (xpeer c) 3) $$ Hrec
  ihave #Rxs4 := (KProto.reached_xs m K c 4) $$ Hrec
  ihave #Rxr4 := (KProto.reached_xr m K c 4) $$ Hrec
  ihave #Sxr4 := (KProto.reached_xr m K (xpeer c) 4) $$ Hrec
  ihave #Rxs5 := (KProto.reached_xs m K c 5) $$ Hrec
  ihave #Rxr5 := (KProto.reached_xr m K c 5) $$ Hrec
  ihave #Sxr5 := (KProto.reached_xr m K (xpeer c) 5) $$ Hrec
  ihave #Rxs6 := (KProto.reached_xs m K c 6) $$ Hrec
  ihave #Rxr6 := (KProto.reached_xr m K c 6) $$ Hrec
  ihave #Sxr6 := (KProto.reached_xr m K (xpeer c) 6) $$ Hrec
  ihave #Rxs7 := (KProto.reached_xs m K c 7) $$ Hrec
  ihave #Rxr7 := (KProto.reached_xr m K c 7) $$ Hrec
  ihave #Sxr7 := (KProto.reached_xr m K (xpeer c) 7) $$ Hrec
  ihave #Sby := (KProto.reached_bar m K (ypeer c)) $$ Hrec
  ihave #Sbx := (KProto.reached_bar m K (xpeer c)) $$ Hrec
  ihave #Syr := (KProto.reached_yr m K (ypeer c)) $$ Hrec
  ihave #Qxr0 := (KProto.reached_xr m K (xpeer (xpeer c)) 0) $$ Hrec
  ihave #Qxr1 := (KProto.reached_xr m K (xpeer (xpeer c)) 1) $$ Hrec
  ihave #Qxr2 := (KProto.reached_xr m K (xpeer (xpeer c)) 2) $$ Hrec
  ihave #Qxr3 := (KProto.reached_xr m K (xpeer (xpeer c)) 3) $$ Hrec
  ihave #Qxr4 := (KProto.reached_xr m K (xpeer (xpeer c)) 4) $$ Hrec
  ihave #Qxr5 := (KProto.reached_xr m K (xpeer (xpeer c)) 5) $$ Hrec
  ihave #Qxr6 := (KProto.reached_xr m K (xpeer (xpeer c)) 6) $$ Hrec
  ihave #Qxr7 := (KProto.reached_xr m K (xpeer (xpeer c)) 7) $$ Hrec
  ihave #Qyr := (KProto.reached_yr m K (ypeer (ypeer c))) $$ Hrec
  -- every buffer through its whole view; the two half-precision buffers by their eight slots; what the handshake
  -- hands the peers restated at the peers' names for this device
  ihave Hx := (KBodyCommon.toView (F := F) c cc0_stg0_0 _) $$ Hx
  ihave Ha := (KBodyCommon.toView (F := F) c cc0_stg1_0 _) $$ Ha
  ihave Hb := (KBodyCommon.toView (F := F) c cc0_stg2_0 _) $$ Hb
  ihave Hcc := (KBodyCommon.toView (F := F) c cc0_stg3_0 _) $$ Hcc
  ihave Ho := (KBodyCommon.toView (F := F) c cc0_stg4_0 _) $$ Ho
  ihave Hh := (KBodyCommon.toView (F := F) c cc0_scratch0 _) $$ Hh
  ihave Hs := (KBodyCommon.toView (F := F) c cc0_scratch1 _) $$ Hs
  ihave Hi := (KBodyCommon.toView (F := F) c cc0_scratch2 _) $$ Hi
  ihave Hob := (KBodyCommon.toView (F := F) c cc0_scratch3 _) $$ Hob
  ihave Hib := (KBodyCommon.toView (F := F) c cc0_scratch4 _) $$ Hib
  ihave Hob := (Entails.of_eq (KBodyGeo.cut_ob (F := F) c fob)) $$ Hob
  icases Hob with ⟨Hob0, Hob1, Hob2, Hob3, Hob4, Hob5, Hob6, Hob7⟩
  ihave Hib := (Entails.of_eq (KBodyGeo.cut_ib (F := F) c fib)) $$ Hib
  icases Hib with ⟨Hib0, Hib1, Hib2, Hib3, Hib4, Hib5, Hib6, Hib7⟩
  ihave Hib0 := (KBodyCommon.toDev (F := F) (KVal.xpeer_xpeer c) KProto.ibS0 fib) $$ Hib0
  ihave Hib1 := (KBodyCommon.toDev (F := F) (KVal.xpeer_xpeer c) KProto.ibS1 fib) $$ Hib1
  ihave Hib2 := (KBodyCommon.toDev (F := F) (KVal.xpeer_xpeer c) KProto.ibS2 fib) $$ Hib2
  ihave Hib3 := (KBodyCommon.toDev (F := F) (KVal.xpeer_xpeer c) KProto.ibS3 fib) $$ Hib3
  ihave Hib4 := (KBodyCommon.toDev (F := F) (KVal.xpeer_xpeer c) KProto.ibS4 fib) $$ Hib4
  ihave Hib5 := (KBodyCommon.toDev (F := F) (KVal.xpeer_xpeer c) KProto.ibS5 fib) $$ Hib5
  ihave Hib6 := (KBodyCommon.toDev (F := F) (KVal.xpeer_xpeer c) KProto.ibS6 fib) $$ Hib6
  ihave Hib7 := (KBodyCommon.toDev (F := F) (KVal.xpeer_xpeer c) KProto.ibS7 fib) $$ Hib7
  sl_unfold [cc0_body]
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the barrier's payloads: the y-peer's receive buffer, the x-peer's eight receive slots
  ihave Hp := (Entails.of_eq (KBodyCommon.bar_split m c)) $$ Pbar_pay1
  icases Hp with ⟨Hpy, Hpx⟩
  ihave Hpy := (Entails.of_eq (KProto.barPayY_even (F := F) c hc)) $$ Hpy
  icases Hpy with ⟨⟨%fhy, Hhy⟩, #Ryr1⟩
  ihave Hpx := (Entails.of_eq (KProto.barPayX_def (F := F) c)) $$ Hpx
  icases Hpx with ⟨⟨%gx0, Hix0⟩, ⟨%gx1, Hix1⟩, ⟨%gx2, Hix2⟩, ⟨%gx3, Hix3⟩, ⟨%gx4, Hix4⟩, ⟨%gx5, Hix5⟩, ⟨%gx6, Hix6⟩, ⟨%gx7, Hix7⟩, -⟩
  -- the state copy to the y-peer
  ihave Hs := (KBodyCommon.pt_whole1 (F := F) c cc0_scratch1 (off := ![0, 0, 0]) (by funext a; fin_cases a <;> rfl) _ _ _) $$ Hs
  iapply (KSend.wp_send_y (F := F) m c (ypeer c) hc rfl _ rfl fhy _ _) $$ [Hs Hhy HO Tys Tyr]
  · isplitr; · iexact Iys
    isplitr; · iexact Jyr
    isplitl [Hs]; · iexact Hs
    isplitl [Hhy]; · iexact Hhy
    isplitl [HO]; · iexact HO
    isplitl [Tys]; · iexact Tys
    isplitr; · iexact Rys
    isplitl [Tyr]; · iexact Tyr
    iexact Syr
  iintro ⟨Cys, HO⟩
  sl_exec_parts (disch := first | simp only [KBodyCommon.dev3_eq', KVal.dev4_eq, KVal.dev5_eq, KVal.dev6_eq, KVal.dev7_eq, KVal.dev8_eq, KVal.dev9_eq, KVal.dev10_eq, KVal.dev11_eq] | exact (fun h => absurd (h159.symm.trans h) (by decide)))
  -- the copy of slot 0 to the x-peer
  have e0 : sound_even.sl.Hob0_w1 m c fob = (obM.access KProto.sl0).write (Elt F) fob (KVal.yblk16 m c 0) Finset.univ := by
    simp only [KVal.yblk16]; rw [hv170]; rfl
  iapply (KSend.wp_send_x0 (F := F) m c (xpeer c) rfl _ fob e0 gx0 _ _) $$ [Hob0 Hix0 HO Txs0 Txr0]
  · isplitr; · iexact Ixs0
    isplitr; · iexact Jxr0
    isplitl [Hob0]; · iexact Hob0
    isplitl [Hix0]; · iexact Hix0
    isplitl [HO]; · iexact HO
    isplitl [Txs0]; · iexact Txs0
    isplitr; · iexact Rxs0
    isplitl [Txr0]; · iexact Txr0
    iexact Sxr0
  iintro ⟨Cxs0, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 1 to the x-peer
  have e1 : sound_even.sl.Hob1_w1 m c fob = (obM.access KProto.sl1).write (Elt F) fob (KVal.yblk16 m c 1) Finset.univ := by
    simp only [KVal.yblk16]; rw [hv170]; rfl
  iapply (KSend.wp_send_x1 (F := F) m c (xpeer c) rfl _ fob e1 gx1 _ _) $$ [Hob1 Hix1 HO Txs1 Txr1]
  · isplitr; · iexact Ixs1
    isplitr; · iexact Jxr1
    isplitl [Hob1]; · iexact Hob1
    isplitl [Hix1]; · iexact Hix1
    isplitl [HO]; · iexact HO
    isplitl [Txs1]; · iexact Txs1
    isplitr; · iexact Rxs1
    isplitl [Txr1]; · iexact Txr1
    iexact Sxr1
  iintro ⟨Cxs1, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 2 to the x-peer
  have e2 : sound_even.sl.Hob2_w1 m c fob = (obM.access KProto.sl2).write (Elt F) fob (KVal.yblk16 m c 2) Finset.univ := by
    simp only [KVal.yblk16]; rw [hv170]; rfl
  iapply (KSend.wp_send_x2 (F := F) m c (xpeer c) rfl _ fob e2 gx2 _ _) $$ [Hob2 Hix2 HO Txs2 Txr2]
  · isplitr; · iexact Ixs2
    isplitr; · iexact Jxr2
    isplitl [Hob2]; · iexact Hob2
    isplitl [Hix2]; · iexact Hix2
    isplitl [HO]; · iexact HO
    isplitl [Txs2]; · iexact Txs2
    isplitr; · iexact Rxs2
    isplitl [Txr2]; · iexact Txr2
    iexact Sxr2
  iintro ⟨Cxs2, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 3 to the x-peer
  have e3 : sound_even.sl.Hob3_w1 m c fob = (obM.access KProto.sl3).write (Elt F) fob (KVal.yblk16 m c 3) Finset.univ := by
    simp only [KVal.yblk16]; rw [hv170]; rfl
  iapply (KSend.wp_send_x3 (F := F) m c (xpeer c) rfl _ fob e3 gx3 _ _) $$ [Hob3 Hix3 HO Txs3 Txr3]
  · isplitr; · iexact Ixs3
    isplitr; · iexact Jxr3
    isplitl [Hob3]; · iexact Hob3
    isplitl [Hix3]; · iexact Hix3
    isplitl [HO]; · iexact HO
    isplitl [Txs3]; · iexact Txs3
    isplitr; · iexact Rxs3
    isplitl [Txr3]; · iexact Txr3
    iexact Sxr3
  iintro ⟨Cxs3, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 4 to the x-peer
  have e4 : sound_even.sl.Hob4_w1 m c fob = (obM.access KProto.sl4).write (Elt F) fob (KVal.yblk16 m c 4) Finset.univ := by
    simp only [KVal.yblk16]; rw [hv170]; rfl
  iapply (KSend.wp_send_x4 (F := F) m c (xpeer c) rfl _ fob e4 gx4 _ _) $$ [Hob4 Hix4 HO Txs4 Txr4]
  · isplitr; · iexact Ixs4
    isplitr; · iexact Jxr4
    isplitl [Hob4]; · iexact Hob4
    isplitl [Hix4]; · iexact Hix4
    isplitl [HO]; · iexact HO
    isplitl [Txs4]; · iexact Txs4
    isplitr; · iexact Rxs4
    isplitl [Txr4]; · iexact Txr4
    iexact Sxr4
  iintro ⟨Cxs4, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 5 to the x-peer
  have e5 : sound_even.sl.Hob5_w1 m c fob = (obM.access KProto.sl5).write (Elt F) fob (KVal.yblk16 m c 5) Finset.univ := by
    simp only [KVal.yblk16]; rw [hv170]; rfl
  iapply (KSend.wp_send_x5 (F := F) m c (xpeer c) rfl _ fob e5 gx5 _ _) $$ [Hob5 Hix5 HO Txs5 Txr5]
  · isplitr; · iexact Ixs5
    isplitr; · iexact Jxr5
    isplitl [Hob5]; · iexact Hob5
    isplitl [Hix5]; · iexact Hix5
    isplitl [HO]; · iexact HO
    isplitl [Txs5]; · iexact Txs5
    isplitr; · iexact Rxs5
    isplitl [Txr5]; · iexact Txr5
    iexact Sxr5
  iintro ⟨Cxs5, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 6 to the x-peer
  have e6 : sound_even.sl.Hob6_w1 m c fob = (obM.access KProto.sl6).write (Elt F) fob (KVal.yblk16 m c 6) Finset.univ := by
    simp only [KVal.yblk16]; rw [hv170]; rfl
  iapply (KSend.wp_send_x6 (F := F) m c (xpeer c) rfl _ fob e6 gx6 _ _) $$ [Hob6 Hix6 HO Txs6 Txr6]
  · isplitr; · iexact Ixs6
    isplitr; · iexact Jxr6
    isplitl [Hob6]; · iexact Hob6
    isplitl [Hix6]; · iexact Hix6
    isplitl [HO]; · iexact HO
    isplitl [Txs6]; · iexact Txs6
    isplitr; · iexact Rxs6
    isplitl [Txr6]; · iexact Txr6
    iexact Sxr6
  iintro ⟨Cxs6, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 7 to the x-peer
  have e7 : sound_even.sl.Hob7_w1 m c fob = (obM.access KProto.sl7).write (Elt F) fob (KVal.yblk16 m c 7) Finset.univ := by
    simp only [KVal.yblk16]; rw [hv170]; rfl
  rw [← zero_add (tallyAt ((xpeer c : Thread nD τ), SemLoc.dma KProto.xrS7) () KProto.NX)]
  iapply (KSend.wp_send_x7 (F := F) m c (xpeer c) rfl _ fob e7 gx7 0 _) $$ [Hob7 Hix7 HO Txs7 Txr7]
  · isplitr; · iexact Ixs7
    isplitr; · iexact Jxr7
    isplitl [Hob7]; · iexact Hob7
    isplitl [Hix7]; · iexact Hix7
    isplitl [HO]; · iexact HO
    isplitl [Txs7]; · iexact Txs7
    isplitr; · iexact Rxs7
    isplitl [Txr7]; · iexact Txr7
    iexact Sxr7
  iintro ⟨Cxs7, HO⟩
  sl_exec_parts (disch := first | simp only [KBodyCommon.dev3_eq', KVal.dev4_eq, KVal.dev5_eq, KVal.dev6_eq, KVal.dev7_eq, KVal.dev8_eq, KVal.dev9_eq, KVal.dev10_eq, KVal.dev11_eq] | sl_exact h501)
  -- the eight received slots are the receive buffer whole
  ihave Hib := (KBodyJoin.join_ib_val (F := F) m c fib) $$ [Pxr0_pay1 Pxr1_pay1 Pxr2_pay1 Pxr3_pay1 Pxr4_pay1 Pxr5_pay1 Pxr6_pay1 Pxr7_pay1]
  · isplitl [Pxr0_pay1]; · iexists _; iexact Pxr0_pay1
    isplitl [Pxr1_pay1]; · iexists _; iexact Pxr1_pay1
    isplitl [Pxr2_pay1]; · iexists _; iexact Pxr2_pay1
    isplitl [Pxr3_pay1]; · iexists _; iexact Pxr3_pay1
    isplitl [Pxr4_pay1]; · iexists _; iexact Pxr4_pay1
    isplitl [Pxr5_pay1]; · iexists _; iexact Pxr5_pay1
    isplitl [Pxr6_pay1]; · iexists _; iexact Pxr6_pay1
    iexists _; iexact Pxr7_pay1
  sl_exec_parts
  -- the value of the output staging buffer: nine stores that tile it
  rw [KBodyCommon.out_writes_eq' (F := F) m c fo]
  rotate_left
  · have ev : sound_even.sl.v630 m c = KVal.obufV m (xpeer c) := KBodyCommon.ibuf_read m c
    unfold KVal.outL; simp only [KVal.yblk]; rw [hv170, ev]; rfl
  rw [wp_ret]
  imod (KClose.close_even (F := F) m K c hc) $$ [Pys Pyr Pxs0 Pxs1 Pxs2 Pxs3 Pxs4 Pxs5 Pxs6 Pxs7 Pxr0 Pxr1 Pxr2 Pxr3 Pxr4 Pxr5 Pxr6 Pxr7] with Hz
  · isplitr; · iexact Hrec
    isplitl [Pys]; · iexact Pys
    isplitl [Pyr]; · iexact Pyr
    isplitl [Pxs0]; · iexact Pxs0
    isplitl [Pxs1]; · iexact Pxs1
    isplitl [Pxs2]; · iexact Pxs2
    isplitl [Pxs3]; · iexact Pxs3
    isplitl [Pxs4]; · iexact Pxs4
    isplitl [Pxs5]; · iexact Pxs5
    isplitl [Pxs6]; · iexact Pxs6
    isplitl [Pxs7]; · iexact Pxs7
    isplitl [Pxr0]; · iexact Pxr0
    isplitl [Pxr1]; · iexact Pxr1
    isplitl [Pxr2]; · iexact Pxr2
    isplitl [Pxr3]; · iexact Pxr3
    isplitl [Pxr4]; · iexact Pxr4
    isplitl [Pxr5]; · iexact Pxr5
    isplitl [Pxr6]; · iexact Pxr6
    iexact Pxr7
  imodintro
  unfold KProto.bodyPost KProto.stagedIn KProto.scratch
  isplitl [HO]; · iexists _; iexact HO
  isplitl [Hx Ha Hb Hcc]
  · isplitl [Hx]; · iexact Hx
    isplitl [Ha]; · iexact Ha
    isplitl [Hb]; · iexact Hb
    iexact Hcc
  isplitl [Ho]; · iexact Ho
  isplitr [Hz]
  · isplitl [Hh]; · iexists _; iexact Hh
    isplitl [Pys_pay1]; · iexists _; iexact Pys_pay1
    isplitl [Hi]; · iexists _; iexact Hi
    isplitr [Hib]
    · iapply (KBodyGeo.join_ob (F := F) c fob)
      isplitl [Pxs0_pay1]; · iexists _; iexact Pxs0_pay1
      isplitl [Pxs1_pay1]; · iexists _; iexact Pxs1_pay1
      isplitl [Pxs2_pay1]; · iexists _; iexact Pxs2_pay1
      isplitl [Pxs3_pay1]; · iexists _; iexact Pxs3_pay1
      isplitl [Pxs4_pay1]; · iexists _; iexact Pxs4_pay1
      isplitl [Pxs5_pay1]; · iexists _; iexact Pxs5_pay1
      isplitl [Pxs6_pay1]; · iexists _; iexact Pxs6_pay1
      iexists _; iexact Pxs7_pay1
    iexists _; iexact Hib
  iexact Hz

end Cert.KernelIdeal.KBodyEven
end
-- ==== Proof.KBodyOdd.lean ====
/-
  The body at a symbolic device with my = 1: from what the launch hands the device (every cell's invariant, its
  positions, the tokens of the duties it pays, its credit, what it owes, the staged arguments, the scratch buffers) to
  the staged arguments unchanged, the output staging buffer at its named contents, nothing owed and its own semaphores
  at zero. The entry handshake, the local scan, the wait for the y-peer's state, the eight row blocks with their copies to
  the x-peer, the waits and the last store, in program order.
-/
import proofs.«900482_g7700000000000483_dist_ssm_v7x_xy2x2_y_b4_s256_d256_n16_f32_1_alg».proof.Proof.KBodyCommon
import proofs.«900482_g7700000000000483_dist_ssm_v7x_xy2x2_y_b4_s256_d256_n16_f32_1_alg».proof.Proof.KBodyGeo
import proofs.«900482_g7700000000000483_dist_ssm_v7x_xy2x2_y_b4_s256_d256_n16_f32_1_alg».proof.Proof.KSend
import proofs.«900482_g7700000000000483_dist_ssm_v7x_xy2x2_y_b4_s256_d256_n16_f32_1_alg».proof.Proof.KClose
import Idealize.ShloMosaic.Lib.HeldBySlice

set_option maxRecDepth 65536

noncomputable section
namespace Cert.KernelIdeal.KBodyOdd

open Cert.KernelIdeal Cert.KernelIdeal.Gen
open Idealize.ShloMosaic Idealize.ShloMosaic.TcCoe Idealize.ShloMosaic.Tactic
open Idealize.SL Idealize.SL.RA Idealize.SL.BI
open Idealize.SL.BI (bigSep bigSepL bigSep_univ_eq_bigSepL)
open scoped Idealize.SL.BI
open Idealize.SL.BI.BIBase Idealize.SL.BI.Laws Idealize.SL.ProofMode Idealize.SL.Sem
open Idealize.ShloMosaic.Rounds
open Cert.KernelIdeal.KVal (ypeer xpeer)
open Cert.KernelIdeal.KProto (UB UU EP ER hsM hiM obM ibM barS ysS yrS barCell ysCell yrCell xsCell xrCell sched)

variable {F : FTy → Type} [FloatOps F]

local notation "𝕄" => MT nD τ sig Unit (Elt F) ℕ UU ℕ

variable (m : (ℓ : Loc nD τ sig) → Buf (Elt F) ℓ)

attribute [local sl_canon] KVal.dev1_eq KVal.dev2_eq KVal.dev4_eq KVal.dev5_eq KVal.dev6_eq KVal.dev7_eq KVal.dev8_eq KVal.dev9_eq KVal.dev10_eq KVal.dev11_eq

set_option maxHeartbeats 8000000 in
theorem sound_odd (K : Dev nD × Fin 19 → ℕ) (c : Dev nD) (hc : c.val % 2 = 1) :
    KProto.bodyPre m K c ⊢ wp frame (wpE (defs₀ (F := F)) KProto.𝒱₀ c none) Set.univ (Gen.bodyAt0 (F := F) Gen.t0_0)
      (fun _ => KProto.bodyPost m c) := by
  have hy0 : (ypeer c).val % 2 = 0 := by rw [KVal.ypeer_mod]; omega
  have hcond : ¬ (k0_cond1 c = 1#1) := by rw [KVal.cond1_eq, if_neg (by omega)]; decide
  have h159 := KBodyCommon.v159_odd c hc
  have h501 := KBodyCommon.v501_odd c hc
  have hv170 : KVal.v170 m c = Gen.k0_pay21 (KVal.v22 m c) (KVal.v121 m c) (KVal.v125 m c) (KVal.v126 m c) (KVal.v127 m c)
      ((Memref.whole cc0_scratch2).view.readAt (Elt F)
        (Rect.unit (s := S2x16x256) ![0, 0, 0] S2x16x256.size Gen.inb_S2x16x256_S2x16x256_0_0_0).toLoadRect (KVal.hinVal m c)) := by
    unfold KVal.v170 KVal.v160 KVal.hinVal KVal.hinV; rw [if_neg (by omega), if_neg (by omega)]
  have hmwb := KProto.mayWait_bar (F := F) c
  rw [KProto.O₂_odd hc] at hmwb; unfold KProto.OX at hmwb
  have hmwy := KProto.mayWait_yr (F := F) c
  unfold KProto.OX at hmwy
  unfold Gen.bodyAt0
  unfold KProto.bodyPre KProto.linear KProto.payToks KProto.creds KProto.stagedIn KProto.scratch KProto.O₀ KProto.O₁
  rw [KProto.O₂_odd hc, if_pos hc]
  unfold KProto.OX
  iintro ⟨#Hrec, ⟨Pbar, Pys, Pyr, Pxs0, Pxs1, Pxs2, Pxs3, Pxs4, Pxs5, Pxs6, Pxs7, Pxr0, Pxr1, Pxr2, Pxr3, Pxr4, Pxr5, Pxr6, Pxr7⟩, ⟨Tby, Tbx, Tys, Tyr, Txs0, Txs1, Txs2, Txs3, Txs4, Txs5, Txs6, Txs7, Txr0, Txr1, Txr2, Txr3, Txr4, Txr5, Txr6, Txr7⟩, ⟨Cbar, Cyr, Cxr0, Cxr1, Cxr2, Cxr3, Cxr4, Cxr5, Cxr6, Cxr7⟩, #Hlev, ⟨%W, HO⟩, ⟨Hx, Ha, Hb, Hcc⟩, ⟨%fo, Ho⟩, ⟨⟨%fh, Hh⟩, ⟨%fs, Hs⟩, ⟨%fi, Hi⟩, ⟨%fob, Hob⟩, ⟨%fib, Hib⟩⟩⟩
  -- the invariants and first rounds of the cells the body touches: its own nineteen, and its peers' it pays into
  ihave #Ibar := (KProto.inv_bar m K c) $$ Hrec
  ihave #Iys := (KProto.inv_ys m K c) $$ Hrec
  ihave #Iyr := (KProto.inv_yr m K c) $$ Hrec
  ihave #Ixs0 := (KProto.inv_xs m K c 0) $$ Hrec
  ihave #Ixr0 := (KProto.inv_xr m K c 0) $$ Hrec
  ihave #Jxr0 := (KProto.inv_xr m K (xpeer c) 0) $$ Hrec
  ihave #Ixs1 := (KProto.inv_xs m K c 1) $$ Hrec
  ihave #Ixr1 := (KProto.inv_xr m K c 1) $$ Hrec
  ihave #Jxr1 := (KProto.inv_xr m K (xpeer c) 1) $$ Hrec
  ihave #Ixs2 := (KProto.inv_xs m K c 2) $$ Hrec
  ihave #Ixr2 := (KProto.inv_xr m K c 2) $$ Hrec
  ihave #Jxr2 := (KProto.inv_xr m K (xpeer c) 2) $$ Hrec
  ihave #Ixs3 := (KProto.inv_xs m K c 3) $$ Hrec
  ihave #Ixr3 := (KProto.inv_xr m K c 3) $$ Hrec
  ihave #Jxr3 := (KProto.inv_xr m K (xpeer c) 3) $$ Hrec
  ihave #Ixs4 := (KProto.inv_xs m K c 4) $$ Hrec
  ihave #Ixr4 := (KProto.inv_xr m K c 4) $$ Hrec
  ihave #Jxr4 := (KProto.inv_xr m K (xpeer c) 4) $$ Hrec
  ihave #Ixs5 := (KProto.inv_xs m K c 5) $$ Hrec
  ihave #Ixr5 := (KProto.inv_xr m K c 5) $$ Hrec
  ihave #Jxr5 := (KProto.inv_xr m K (xpeer c) 5) $$ Hrec
  ihave #Ixs6 := (KProto.inv_xs m K c 6) $$ Hrec
  ihave #Ixr6 := (KProto.inv_xr m K c 6) $$ Hrec
  ihave #Jxr6 := (KProto.inv_xr m K (xpeer c) 6) $$ Hrec
  ihave #Ixs7 := (KProto.inv_xs m K c 7) $$ Hrec
  ihave #Ixr7 := (KProto.inv_xr m K c 7) $$ Hrec
  ihave #Jxr7 := (KProto.inv_xr m K (xpeer c) 7) $$ Hrec
  ihave #Jby := (KProto.inv_bar m K (ypeer c)) $$ Hrec
  ihave #Jbx := (KProto.inv_bar m K (xpeer c)) $$ Hrec
  ihave #Jyr := (KProto.inv_yr m K (ypeer c)) $$ Hrec
  ihave #Rbar := (KProto.reached_bar m K c) $$ Hrec
  ihave #Rys := (KProto.reached_ys m K c) $$ Hrec
  ihave #Ryr := (KProto.reached_yr m K c) $$ Hrec
  ihave #Rxs0 := (KProto.reached_xs m K c 0) $$ Hrec
  ihave #Rxr0 := (KProto.reached_xr m K c 0) $$ Hrec
  ihave #Sxr0 := (KProto.reached_xr m K (xpeer c) 0) $$ Hrec
  ihave #Rxs1 := (KProto.reached_xs m K c 1) $$ Hrec
  ihave #Rxr1 := (KProto.reached_xr m K c 1) $$ Hrec
  ihave #Sxr1 := (KProto.reached_xr m K (xpeer c) 1) $$ Hrec
  ihave #Rxs2 := (KProto.reached_xs m K c 2) $$ Hrec
  ihave #Rxr2 := (KProto.reached_xr m K c 2) $$ Hrec
  ihave #Sxr2 := (KProto.reached_xr m K (xpeer c) 2) $$ Hrec
  ihave #Rxs3 := (KProto.reached_xs m K c 3) $$ Hrec
  ihave #Rxr3 := (KProto.reached_xr m K c 3) $$ Hrec
  ihave #Sxr3 := (KProto.reached_xr m K (xpeer c) 3) $$ Hrec
  ihave #Rxs4 := (KProto.reached_xs m K c 4) $$ Hrec
  ihave #Rxr4 := (KProto.reached_xr m K c 4) $$ Hrec
  ihave #Sxr4 := (KProto.reached_xr m K (xpeer c) 4) $$ Hrec
  ihave #Rxs5 := (KProto.reached_xs m K c 5) $$ Hrec
  ihave #Rxr5 := (KProto.reached_xr m K c 5) $$ Hrec
  ihave #Sxr5 := (KProto.reached_xr m K (xpeer c) 5) $$ Hrec
  ihave #Rxs6 := (KProto.reached_xs m K c 6) $$ Hrec
  ihave #Rxr6 := (KProto.reached_xr m K c 6) $$ Hrec
  ihave #Sxr6 := (KProto.reached_xr m K (xpeer c) 6) $$ Hrec
  ihave #Rxs7 := (KProto.reached_xs m K c 7) $$ Hrec
  ihave #Rxr7 := (KProto.reached_xr m K c 7) $$ Hrec
  ihave #Sxr7 := (KProto.reached_xr m K (xpeer c) 7) $$ Hrec
  ihave #Sby := (KProto.reached_bar m K (ypeer c)) $$ Hrec
  ihave #Sbx := (KProto.reached_bar m K (xpeer c)) $$ Hrec
  ihave #Syr := (KProto.reached_yr m K (ypeer c)) $$ Hrec
  ihave #Qxr0 := (KProto.reached_xr m K (xpeer (xpeer c)) 0) $$ Hrec
  ihave #Qxr1 := (KProto.reached_xr m K (xpeer (xpeer c)) 1) $$ Hrec
  ihave #Qxr2 := (KProto.reached_xr m K (xpeer (xpeer c)) 2) $$ Hrec
  ihave #Qxr3 := (KProto.reached_xr m K (xpeer (xpeer c)) 3) $$ Hrec
  ihave #Qxr4 := (KProto.reached_xr m K (xpeer (xpeer c)) 4) $$ Hrec
  ihave #Qxr5 := (KProto.reached_xr m K (xpeer (xpeer c)) 5) $$ Hrec
  ihave #Qxr6 := (KProto.reached_xr m K (xpeer (xpeer c)) 6) $$ Hrec
  ihave #Qxr7 := (KProto.reached_xr m K (xpeer (xpeer c)) 7) $$ Hrec
  ihave #Qyr := (KProto.reached_yr m K (ypeer (ypeer c))) $$ Hrec
  -- every buffer through its whole view; the two half-precision buffers by their eight slots; what the handshake
  -- hands the peers restated at the peers' names for this device
  ihave Hx := (KBodyCommon.toView (F := F) c cc0_stg0_0 _) $$ Hx
  ihave Ha := (KBodyCommon.toView (F := F) c cc0_stg1_0 _) $$ Ha
  ihave Hb := (KBodyCommon.toView (F := F) c cc0_stg2_0 _) $$ Hb
  ihave Hcc := (KBodyCommon.toView (F := F) c cc0_stg3_0 _) $$ Hcc
  ihave Ho := (KBodyCommon.toView (F := F) c cc0_stg4_0 _) $$ Ho
  ihave Hh := (KBodyCommon.toView (F := F) c cc0_scratch0 _) $$ Hh
  ihave Hs := (KBodyCommon.toView (F := F) c cc0_scratch1 _) $$ Hs
  ihave Hi := (KBodyCommon.toView (F := F) c cc0_scratch2 _) $$ Hi
  ihave Hob := (KBodyCommon.toView (F := F) c cc0_scratch3 _) $$ Hob
  ihave Hib := (KBodyCommon.toView (F := F) c cc0_scratch4 _) $$ Hib
  ihave Hob := (Entails.of_eq (KBodyGeo.cut_ob (F := F) c fob)) $$ Hob
  icases Hob with ⟨Hob0, Hob1, Hob2, Hob3, Hob4, Hob5, Hob6, Hob7⟩
  ihave Hib := (Entails.of_eq (KBodyGeo.cut_ib (F := F) c fib)) $$ Hib
  icases Hib with ⟨Hib0, Hib1, Hib2, Hib3, Hib4, Hib5, Hib6, Hib7⟩
  ihave Hib0 := (KBodyCommon.toDev (F := F) (KVal.xpeer_xpeer c) KProto.ibS0 fib) $$ Hib0
  ihave Hib1 := (KBodyCommon.toDev (F := F) (KVal.xpeer_xpeer c) KProto.ibS1 fib) $$ Hib1
  ihave Hib2 := (KBodyCommon.toDev (F := F) (KVal.xpeer_xpeer c) KProto.ibS2 fib) $$ Hib2
  ihave Hib3 := (KBodyCommon.toDev (F := F) (KVal.xpeer_xpeer c) KProto.ibS3 fib) $$ Hib3
  ihave Hib4 := (KBodyCommon.toDev (F := F) (KVal.xpeer_xpeer c) KProto.ibS4 fib) $$ Hib4
  ihave Hib5 := (KBodyCommon.toDev (F := F) (KVal.xpeer_xpeer c) KProto.ibS5 fib) $$ Hib5
  ihave Hib6 := (KBodyCommon.toDev (F := F) (KVal.xpeer_xpeer c) KProto.ibS6 fib) $$ Hib6
  ihave Hib7 := (KBodyCommon.toDev (F := F) (KVal.xpeer_xpeer c) KProto.ibS7 fib) $$ Hib7
  ihave Hi := (KBodyCommon.toDevW (F := F) (KVal.ypeer_ypeer c) hiM fi) $$ Hi
  sl_unfold [cc0_body]
  sl_exec_parts (disch := first | simp only [KBodyCommon.dev3_eq', KVal.dev4_eq, KVal.dev5_eq, KVal.dev6_eq, KVal.dev7_eq, KVal.dev8_eq, KVal.dev9_eq, KVal.dev10_eq, KVal.dev11_eq] | sl_exact h159)
  -- the barrier's payloads: the x-peer's eight receive slots
  ihave Hp := (Entails.of_eq (KBodyCommon.bar_split m c)) $$ Pbar_pay1
  icases Hp with ⟨Hpy, Hpx⟩
  iclear Hpy
  ihave Hpx := (Entails.of_eq (KProto.barPayX_def (F := F) c)) $$ Hpx
  icases Hpx with ⟨⟨%gx0, Hix0⟩, ⟨%gx1, Hix1⟩, ⟨%gx2, Hix2⟩, ⟨%gx3, Hix3⟩, ⟨%gx4, Hix4⟩, ⟨%gx5, Hix5⟩, ⟨%gx6, Hix6⟩, ⟨%gx7, Hix7⟩, -⟩
  -- the copy of slot 0 to the x-peer
  have e0 : sound_odd.sl.Hob0_w1 m c fob = (obM.access KProto.sl0).write (Elt F) fob (KVal.yblk16 m c 0) Finset.univ := by
    simp only [KVal.yblk16]; rw [hv170]; rfl
  iapply (KSend.wp_send_x0 (F := F) m c (xpeer c) rfl _ fob e0 gx0 _ _) $$ [Hob0 Hix0 HO Txs0 Txr0]
  · isplitr; · iexact Ixs0
    isplitr; · iexact Jxr0
    isplitl [Hob0]; · iexact Hob0
    isplitl [Hix0]; · iexact Hix0
    isplitl [HO]; · iexact HO
    isplitl [Txs0]; · iexact Txs0
    isplitr; · iexact Rxs0
    isplitl [Txr0]; · iexact Txr0
    iexact Sxr0
  iintro ⟨Cxs0, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 1 to the x-peer
  have e1 : sound_odd.sl.Hob1_w1 m c fob = (obM.access KProto.sl1).write (Elt F) fob (KVal.yblk16 m c 1) Finset.univ := by
    simp only [KVal.yblk16]; rw [hv170]; rfl
  iapply (KSend.wp_send_x1 (F := F) m c (xpeer c) rfl _ fob e1 gx1 _ _) $$ [Hob1 Hix1 HO Txs1 Txr1]
  · isplitr; · iexact Ixs1
    isplitr; · iexact Jxr1
    isplitl [Hob1]; · iexact Hob1
    isplitl [Hix1]; · iexact Hix1
    isplitl [HO]; · iexact HO
    isplitl [Txs1]; · iexact Txs1
    isplitr; · iexact Rxs1
    isplitl [Txr1]; · iexact Txr1
    iexact Sxr1
  iintro ⟨Cxs1, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 2 to the x-peer
  have e2 : sound_odd.sl.Hob2_w1 m c fob = (obM.access KProto.sl2).write (Elt F) fob (KVal.yblk16 m c 2) Finset.univ := by
    simp only [KVal.yblk16]; rw [hv170]; rfl
  iapply (KSend.wp_send_x2 (F := F) m c (xpeer c) rfl _ fob e2 gx2 _ _) $$ [Hob2 Hix2 HO Txs2 Txr2]
  · isplitr; · iexact Ixs2
    isplitr; · iexact Jxr2
    isplitl [Hob2]; · iexact Hob2
    isplitl [Hix2]; · iexact Hix2
    isplitl [HO]; · iexact HO
    isplitl [Txs2]; · iexact Txs2
    isplitr; · iexact Rxs2
    isplitl [Txr2]; · iexact Txr2
    iexact Sxr2
  iintro ⟨Cxs2, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 3 to the x-peer
  have e3 : sound_odd.sl.Hob3_w1 m c fob = (obM.access KProto.sl3).write (Elt F) fob (KVal.yblk16 m c 3) Finset.univ := by
    simp only [KVal.yblk16]; rw [hv170]; rfl
  iapply (KSend.wp_send_x3 (F := F) m c (xpeer c) rfl _ fob e3 gx3 _ _) $$ [Hob3 Hix3 HO Txs3 Txr3]
  · isplitr; · iexact Ixs3
    isplitr; · iexact Jxr3
    isplitl [Hob3]; · iexact Hob3
    isplitl [Hix3]; · iexact Hix3
    isplitl [HO]; · iexact HO
    isplitl [Txs3]; · iexact Txs3
    isplitr; · iexact Rxs3
    isplitl [Txr3]; · iexact Txr3
    iexact Sxr3
  iintro ⟨Cxs3, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 4 to the x-peer
  have e4 : sound_odd.sl.Hob4_w1 m c fob = (obM.access KProto.sl4).write (Elt F) fob (KVal.yblk16 m c 4) Finset.univ := by
    simp only [KVal.yblk16]; rw [hv170]; rfl
  iapply (KSend.wp_send_x4 (F := F) m c (xpeer c) rfl _ fob e4 gx4 _ _) $$ [Hob4 Hix4 HO Txs4 Txr4]
  · isplitr; · iexact Ixs4
    isplitr; · iexact Jxr4
    isplitl [Hob4]; · iexact Hob4
    isplitl [Hix4]; · iexact Hix4
    isplitl [HO]; · iexact HO
    isplitl [Txs4]; · iexact Txs4
    isplitr; · iexact Rxs4
    isplitl [Txr4]; · iexact Txr4
    iexact Sxr4
  iintro ⟨Cxs4, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 5 to the x-peer
  have e5 : sound_odd.sl.Hob5_w1 m c fob = (obM.access KProto.sl5).write (Elt F) fob (KVal.yblk16 m c 5) Finset.univ := by
    simp only [KVal.yblk16]; rw [hv170]; rfl
  iapply (KSend.wp_send_x5 (F := F) m c (xpeer c) rfl _ fob e5 gx5 _ _) $$ [Hob5 Hix5 HO Txs5 Txr5]
  · isplitr; · iexact Ixs5
    isplitr; · iexact Jxr5
    isplitl [Hob5]; · iexact Hob5
    isplitl [Hix5]; · iexact Hix5
    isplitl [HO]; · iexact HO
    isplitl [Txs5]; · iexact Txs5
    isplitr; · iexact Rxs5
    isplitl [Txr5]; · iexact Txr5
    iexact Sxr5
  iintro ⟨Cxs5, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 6 to the x-peer
  have e6 : sound_odd.sl.Hob6_w1 m c fob = (obM.access KProto.sl6).write (Elt F) fob (KVal.yblk16 m c 6) Finset.univ := by
    simp only [KVal.yblk16]; rw [hv170]; rfl
  iapply (KSend.wp_send_x6 (F := F) m c (xpeer c) rfl _ fob e6 gx6 _ _) $$ [Hob6 Hix6 HO Txs6 Txr6]
  · isplitr; · iexact Ixs6
    isplitr; · iexact Jxr6
    isplitl [Hob6]; · iexact Hob6
    isplitl [Hix6]; · iexact Hix6
    isplitl [HO]; · iexact HO
    isplitl [Txs6]; · iexact Txs6
    isplitr; · iexact Rxs6
    isplitl [Txr6]; · iexact Txr6
    iexact Sxr6
  iintro ⟨Cxs6, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 7 to the x-peer
  have e7 : sound_odd.sl.Hob7_w1 m c fob = (obM.access KProto.sl7).write (Elt F) fob (KVal.yblk16 m c 7) Finset.univ := by
    simp only [KVal.yblk16]; rw [hv170]; rfl
  rw [← zero_add (tallyAt ((xpeer c : Thread nD τ), SemLoc.dma KProto.xrS7) () KProto.NX)]
  iapply (KSend.wp_send_x7 (F := F) m c (xpeer c) rfl _ fob e7 gx7 0 _) $$ [Hob7 Hix7 HO Txs7 Txr7]
  · isplitr; · iexact Ixs7
    isplitr; · iexact Jxr7
    isplitl [Hob7]; · iexact Hob7
    isplitl [Hix7]; · iexact Hix7
    isplitl [HO]; · iexact HO
    isplitl [Txs7]; · iexact Txs7
    isplitr; · iexact Rxs7
    isplitl [Txr7]; · iexact Txr7
    iexact Sxr7
  iintro ⟨Cxs7, HO⟩
  sl_exec_parts (disch := first | simp only [KBodyCommon.dev3_eq', KVal.dev4_eq, KVal.dev5_eq, KVal.dev6_eq, KVal.dev7_eq, KVal.dev8_eq, KVal.dev9_eq, KVal.dev10_eq, KVal.dev11_eq] | exact (fun h => absurd (h501.symm.trans h) (by decide)))
  -- the eight received slots are the receive buffer whole
  ihave Hib := (KBodyJoin.join_ib_val (F := F) m c fib) $$ [Pxr0_pay1 Pxr1_pay1 Pxr2_pay1 Pxr3_pay1 Pxr4_pay1 Pxr5_pay1 Pxr6_pay1 Pxr7_pay1]
  · isplitl [Pxr0_pay1]; · iexists _; iexact Pxr0_pay1
    isplitl [Pxr1_pay1]; · iexists _; iexact Pxr1_pay1
    isplitl [Pxr2_pay1]; · iexists _; iexact Pxr2_pay1
    isplitl [Pxr3_pay1]; · iexists _; iexact Pxr3_pay1
    isplitl [Pxr4_pay1]; · iexists _; iexact Pxr4_pay1
    isplitl [Pxr5_pay1]; · iexists _; iexact Pxr5_pay1
    isplitl [Pxr6_pay1]; · iexists _; iexact Pxr6_pay1
    iexists _; iexact Pxr7_pay1
  sl_exec_parts
  -- the value of the output staging buffer: nine stores that tile it
  rw [KBodyCommon.out_writes_eq' (F := F) m c fo]
  rotate_left
  · have ev : sound_odd.sl.v630 m c = KVal.obufV m (xpeer c) := KBodyCommon.ibuf_read m c
    unfold KVal.outL; simp only [KVal.yblk]; rw [hv170, ev]; rfl
  rw [wp_ret]
  imod (KClose.close_odd (F := F) m K c hc) $$ [Pys Pyr Pxs0 Pxs1 Pxs2 Pxs3 Pxs4 Pxs5 Pxs6 Pxs7 Pxr0 Pxr1 Pxr2 Pxr3 Pxr4 Pxr5 Pxr6 Pxr7] with Hz
  · isplitr; · iexact Hrec
    isplitl [Pys]; · iexact Pys
    isplitl [Pyr]; · iexact Pyr
    isplitl [Pxs0]; · iexact Pxs0
    isplitl [Pxs1]; · iexact Pxs1
    isplitl [Pxs2]; · iexact Pxs2
    isplitl [Pxs3]; · iexact Pxs3
    isplitl [Pxs4]; · iexact Pxs4
    isplitl [Pxs5]; · iexact Pxs5
    isplitl [Pxs6]; · iexact Pxs6
    isplitl [Pxs7]; · iexact Pxs7
    isplitl [Pxr0]; · iexact Pxr0
    isplitl [Pxr1]; · iexact Pxr1
    isplitl [Pxr2]; · iexact Pxr2
    isplitl [Pxr3]; · iexact Pxr3
    isplitl [Pxr4]; · iexact Pxr4
    isplitl [Pxr5]; · iexact Pxr5
    isplitl [Pxr6]; · iexact Pxr6
    iexact Pxr7
  imodintro
  unfold KProto.bodyPost KProto.stagedIn KProto.scratch
  isplitl [HO]; · iexists _; iexact HO
  isplitl [Hx Ha Hb Hcc]
  · isplitl [Hx]; · iexact Hx
    isplitl [Ha]; · iexact Ha
    isplitl [Hb]; · iexact Hb
    iexact Hcc
  isplitl [Ho]; · iexact Ho
  isplitr [Hz]
  · isplitl [Hh]; · iexists _; iexact Hh
    isplitl [Hs]; · iexists _; iexact Hs
    isplitl [Pyr_pay1]; · iexists _; iexact Pyr_pay1
    isplitr [Hib]
    · iapply (KBodyGeo.join_ob (F := F) c fob)
      isplitl [Pxs0_pay1]; · iexists _; iexact Pxs0_pay1
      isplitl [Pxs1_pay1]; · iexists _; iexact Pxs1_pay1
      isplitl [Pxs2_pay1]; · iexists _; iexact Pxs2_pay1
      isplitl [Pxs3_pay1]; · iexists _; iexact Pxs3_pay1
      isplitl [Pxs4_pay1]; · iexists _; iexact Pxs4_pay1
      isplitl [Pxs5_pay1]; · iexists _; iexact Pxs5_pay1
      isplitl [Pxs6_pay1]; · iexists _; iexact Pxs6_pay1
      iexists _; iexact Pxs7_pay1
    iexists _; iexact Hib
  iexact Hz

end Cert.KernelIdeal.KBodyOdd
end
-- ==== Proof.KBody.lean ====
/-
  The body lemma: on every device, under any names of the cells' invariants, the kernel's body at the one grid
  point runs from what the launch hands the device to the staged arguments unchanged, the output staging buffer at
  its named contents, nothing owed and the device's own semaphores at zero. By cases on my = c % 2.
-/
import proofs.«900482_g7700000000000483_dist_ssm_v7x_xy2x2_y_b4_s256_d256_n16_f32_1_alg».proof.Proof.KBodyEven
import proofs.«900482_g7700000000000483_dist_ssm_v7x_xy2x2_y_b4_s256_d256_n16_f32_1_alg».proof.Proof.KBodyOdd

noncomputable section
namespace Cert.KernelIdeal.KBody

open Cert.KernelIdeal
open Idealize.ShloMosaic

variable {F : FTy → Type} [FloatOps F]

theorem sound_body (m : (ℓ : Loc nD τ sig) → Buf (Elt F) ℓ) : KProto.SoundBody (F := F) m := fun K c => by
  rcases Nat.mod_two_eq_zero_or_one c.val with h | h
  · exact KBodyEven.sound_even m K c h
  · exact KBodyOdd.sound_odd m K c h

/-- info: 'Cert.KernelIdeal.KBody.sound_body' depends on axioms: [propext, Classical.choice, Quot.sound] -/
#guard_msgs in #print axioms sound_body

end Cert.KernelIdeal.KBody
end
-- ==== Proof.KValBits.lean ====
/-
  The values the kernel's protocol moves, named as pure functions of the initial memory: for each device
  the state it sends along the y axis, the state it folds in, the half-precision rows it sends along the x
  axis, the rows it receives, and the output staging buffer when the body ends.
-/
import proofs.«900482_g7700000000000483_dist_ssm_v7x_xy2x2_y_b4_s256_d256_n16_f32_1_alg».proof.Proof.Gen.Kernel
import proofs.«900482_g7700000000000483_dist_ssm_v7x_xy2x2_y_b4_s256_d256_n16_f32_1_alg».proof.Proof.Gen.Kernel.Skeleton
import Idealize.ShloMosaic.Lib.Writes
import Idealize.ShloMosaic.Lib.Pipeline.FrameBody

noncomputable section

namespace Cert.Kernel.KVal

open Idealize.ShloMosaic Idealize.SL.Sem Cert.Kernel

variable {F : FTy → Type} [FloatOps F]

/-! ## The two peers of a device on the 2×2 mesh (device c = 2 * mx + my) -/

/-- The device with the same mx and the other my. -/
def ypeer (c : Dev nD) : Dev nD := ⟨2 * (c.val / 2) + 1 - c.val % 2, by have h : c.val < 4 := c.isLt; show _ < 4; omega⟩

/-- The device with the other mx and the same my. -/
def xpeer (c : Dev nD) : Dev nD := ⟨c.val % 2 + 2 - 2 * (c.val / 2), by have h : c.val < 4 := c.isLt; show _ < 4; omega⟩

theorem ypeer_ypeer : ∀ c : Dev nD, ypeer (ypeer c) = c := by decide
theorem xpeer_xpeer : ∀ c : Dev nD, xpeer (xpeer c) = c := by decide
theorem ypeer_ne : ∀ c : Dev nD, ypeer c ≠ c := by decide
theorem xpeer_ne : ∀ c : Dev nD, xpeer c ≠ c := by decide
theorem xpeer_ne_ypeer : ∀ c : Dev nD, xpeer c ≠ ypeer c := by decide
theorem ypeer_mod : ∀ c : Dev nD, (ypeer c).val % 2 = 1 - c.val % 2 := by decide
theorem xpeer_mod : ∀ c : Dev nD, (xpeer c).val % 2 = c.val % 2 := by decide
theorem ypeer_div : ∀ c : Dev nD, (ypeer c).val / 2 = c.val / 2 := by decide
theorem xpeer_div : ∀ c : Dev nD, (xpeer c).val / 2 = 1 - c.val / 2 := by decide
theorem xpeer_ypeer : ∀ c : Dev nD, xpeer (ypeer c) = ypeer (xpeer c) := by decide

theorem dev1_eq (c : Dev nD) : (⟨k0_dev1 c, Gen.k0_dev1_lt c⟩ : Dev nD) = ypeer c := Fin.ext (Gen.k0_dev1_eq c)
theorem dev2_eq (c : Dev nD) : (⟨k0_dev2 c, Gen.k0_dev2_lt c⟩ : Dev nD) = xpeer c := Fin.ext (Gen.k0_dev2_eq c)
theorem dev3_eq (c : Dev nD) (h : k0_cond1 c = 1#1) : (⟨k0_dev3 c, Gen.k0_dev3_lt c h⟩ : Dev nD) = ypeer c := Fin.ext (Gen.k0_dev3_eq c)
theorem dev4_eq (c : Dev nD) : (⟨k0_dev4 c, Gen.k0_dev4_lt c⟩ : Dev nD) = xpeer c := Fin.ext (Gen.k0_dev4_eq c)
theorem dev5_eq (c : Dev nD) : (⟨k0_dev5 c, Gen.k0_dev5_lt c⟩ : Dev nD) = xpeer c := Fin.ext (Gen.k0_dev5_eq c)
theorem dev6_eq (c : Dev nD) : (⟨k0_dev6 c, Gen.k0_dev6_lt c⟩ : Dev nD) = xpeer c := Fin.ext (Gen.k0_dev6_eq c)
theorem dev7_eq (c : Dev nD) : (⟨k0_dev7 c, Gen.k0_dev7_lt c⟩ : Dev nD) = xpeer c := Fin.ext (Gen.k0_dev7_eq c)
theorem dev8_eq (c : Dev nD) : (⟨k0_dev8 c, Gen.k0_dev8_lt c⟩ : Dev nD) = xpeer c := Fin.ext (Gen.k0_dev8_eq c)
theorem dev9_eq (c : Dev nD) : (⟨k0_dev9 c, Gen.k0_dev9_lt c⟩ : Dev nD) = xpeer c := Fin.ext (Gen.k0_dev9_eq c)
theorem dev10_eq (c : Dev nD) : (⟨k0_dev10 c, Gen.k0_dev10_lt c⟩ : Dev nD) = xpeer c := Fin.ext (Gen.k0_dev10_eq c)
theorem dev11_eq (c : Dev nD) : (⟨k0_dev11 c, Gen.k0_dev11_lt c⟩ : Dev nD) = xpeer c := Fin.ext (Gen.k0_dev11_eq c)

/-- The branch condition of the body holds exactly on the devices with my = 0. -/
theorem cond1_eq : ∀ c : Dev nD, k0_cond1 c = if c.val % 2 = 0 then 1#1 else 0#1 := by decide +kernel

variable (m : (ℓ : Loc nD τ sig) → Buf (Elt F) ℓ)

/-! ## The arguments a device holds -/

/-- Device c's block of x, as an array of shape [4, 256, 256]. -/
def argX (c : Dev nD) : Vec F S4x256x256 .f32 := m ((c.tc : Thread nD τ).loc main_arg0)
/-- Device c's copy of A, [256, 16]. -/
def argA (c : Dev nD) : Vec F S256x16 .f32 := m ((c.tc : Thread nD τ).loc main_arg1)
/-- Device c's block of B, [4, 256, 16]. -/
def argB (c : Dev nD) : Vec F S4x256x16 .f32 := m ((c.tc : Thread nD τ).loc main_arg2)
/-- Device c's block of C, [4, 256, 16]. -/
def argC (c : Dev nD) : Vec F S4x256x16 .f32 := m ((c.tc : Thread nD τ).loc main_arg3)

/-- The device's copy of A as the body loads it (a load of the whole staging buffer). -/
def v20 (c : Dev nD) : Vec F S256x16 .f32 :=
  (Memref.whole cc0_stg1_0).view.readAt (Elt F) (Rect.unit (s := S256x16) ![0, 0] S256x16.size Gen.inb_S256x16_S256x16_0_0).toLoadRect (argA m c)

/-- The transposed decay exponents, [16, 256]. -/
def v22 (c : Dev nD) : FVec F S16x256 .f32 := Gen.k0_pay2 (v20 m c)

/-- The device's own two batch rows of x. -/
def v24 (c : Dev nD) : Vec F S2x256x256 .f32 :=
  (Memref.whole cc0_stg0_0).view.readAt (Elt F) (Rect.unit (s := S4x256x256) (k0_off1 c) S2x256x256.size (Gen.k0_off1_inb c)).toLoadRect (argX m c)
/-- The device's own two batch rows of B. -/
def v27 (c : Dev nD) : Vec F S2x256x16 .f32 :=
  (Memref.whole cc0_stg2_0).view.readAt (Elt F) (Rect.unit (s := S4x256x16) (k0_off2 c) S2x256x16.size (Gen.k0_off2_inb c)).toLoadRect (argB m c)
/-- The device's own two batch rows of C. -/
def v137 (c : Dev nD) : Vec F S2x256x16 .f32 :=
  (Memref.whole cc0_stg3_0).view.readAt (Elt F) (Rect.unit (s := S4x256x16) (k0_off2 c) S2x256x16.size (Gen.k0_off2_inb c)).toLoadRect (argC m c)

/-! ## The local scan: the state buffer after the whole store and the four doubling steps -/

/-- The pieces stored into the state buffer so far, last first: after the whole store. -/
def hL0 (c : Dev nD) : List (View.Piece (Elt F) S2x16x16x16x256 .f32) :=
  [⟨Rect.unit (s := S2x16x16x16x256) ![0, 0, 0, 0, 0] S2x16x16x16x256.size Gen.inb_S2x16x16x16x256_S2x16x16x16x256_0_0_0_0_0,
    Gen.k0_pay5 (Gen.k0_pay3 (v27 m c)) (Gen.k0_pay4 (v24 m c))⟩]

/-- What a load of a box of the state buffer reads after the stores L (last first). -/
def hld (L : List (View.Piece (Elt F) S2x16x16x16x256 .f32)) (r : Rect S2x16x16x16x256) : Vec F r.shape .f32 :=
  (Memref.whole cc0_scratch0).view.readCov L r.toLoadRect

/-- A load after stores reads, at each index, the payload of the last store that holds it. -/
theorem hld_eq (L : List (View.Piece (Elt F) S2x16x16x16x256 .f32)) (r : Rect S2x16x16x16x256) :
    hld L r = fun j => View.canon L (r.toLoadRect.idx j) :=
  View.readCov_eq_canon' _ L r.toLoadRect

/-- After the step of offset 1. -/
def hL1 (c : Dev nD) : List (View.Piece (Elt F) S2x16x16x16x256 .f32) :=
  ⟨Rect.unit (s := S2x16x16x16x256) ![0, 0, 0, 1, 0] S2x16x16x15x256.size Gen.inb_S2x16x16x16x256_S2x16x16x15x256_0_0_0_1_0,
    Gen.k0_pay6 (v22 m c)
      (hld (hL0 m c) (Rect.unit (s := S2x16x16x16x256) ![0, 0, 0, 1, 0] S2x16x16x15x256.size Gen.inb_S2x16x16x16x256_S2x16x16x15x256_0_0_0_1_0))
      (hld (hL0 m c) (Rect.unit (s := S2x16x16x16x256) ![0, 0, 0, 0, 0] S2x16x16x15x256.size Gen.inb_S2x16x16x16x256_S2x16x16x15x256_0_0_0_0_0))⟩ :: hL0 m c

/-- After the step of offset 2. -/
def hL2 (c : Dev nD) : List (View.Piece (Elt F) S2x16x16x16x256 .f32) :=
  ⟨Rect.unit (s := S2x16x16x16x256) ![0, 0, 0, 2, 0] S2x16x16x14x256.size Gen.inb_S2x16x16x16x256_S2x16x16x14x256_0_0_0_2_0,
    Gen.k0_pay8
      (hld (hL1 m c) (Rect.unit (s := S2x16x16x16x256) ![0, 0, 0, 2, 0] S2x16x16x14x256.size Gen.inb_S2x16x16x16x256_S2x16x16x14x256_0_0_0_2_0))
      (Gen.k0_pay7 (v22 m c))
      (hld (hL1 m c) (Rect.unit (s := S2x16x16x16x256) ![0, 0, 0, 0, 0] S2x16x16x14x256.size Gen.inb_S2x16x16x16x256_S2x16x16x14x256_0_0_0_0_0))⟩ :: hL1 m c

/-- After the step of offset 4. -/
def hL3 (c : Dev nD) : List (View.Piece (Elt F) S2x16x16x16x256 .f32) :=
  ⟨Rect.unit (s := S2x16x16x16x256) ![0, 0, 0, 4, 0] S2x16x16x12x256.size Gen.inb_S2x16x16x16x256_S2x16x16x12x256_0_0_0_4_0,
    Gen.k0_pay9 (v22 m c)
      (hld (hL2 m c) (Rect.unit (s := S2x16x16x16x256) ![0, 0, 0, 4, 0] S2x16x16x12x256.size Gen.inb_S2x16x16x16x256_S2x16x16x12x256_0_0_0_4_0))
      (hld (hL2 m c) (Rect.unit (s := S2x16x16x16x256) ![0, 0, 0, 0, 0] S2x16x16x12x256.size Gen.inb_S2x16x16x16x256_S2x16x16x12x256_0_0_0_0_0))⟩ :: hL2 m c

/-- After the step of offset 8: the state buffer for the rest of the body. -/
def hL4 (c : Dev nD) : List (View.Piece (Elt F) S2x16x16x16x256 .f32) :=
  ⟨Rect.unit (s := S2x16x16x16x256) ![0, 0, 0, 8, 0] S2x16x16x8x256.size Gen.inb_S2x16x16x16x256_S2x16x16x8x256_0_0_0_8_0,
    Gen.k0_pay11
      (hld (hL3 m c) (Rect.unit (s := S2x16x16x16x256) ![0, 0, 0, 8, 0] S2x16x16x8x256.size Gen.inb_S2x16x16x16x256_S2x16x16x8x256_0_0_0_8_0))
      (Gen.k0_pay10 (v22 m c)
        (hld (hL3 m c) (Rect.unit (s := S2x16x16x16x256) ![0, 0, 0, 0, 0] S2x16x16x8x256.size Gen.inb_S2x16x16x16x256_S2x16x16x8x256_0_0_0_0_0)))⟩ :: hL3 m c

/-- The last in-chunk states, [2, 16, 16, 1, 256]. -/
def v87 (c : Dev nD) : Vec F S2x16x16x1x256 .f32 :=
  hld (hL4 m c) (Rect.unit (s := S2x16x16x16x256) ![0, 0, 0, 15, 0] S2x16x16x1x256.size Gen.inb_S2x16x16x16x256_S2x16x16x1x256_0_0_0_15_0)

def v121 (c : Dev nD) : FVec F S2x16x16x256 .f32 := Gen.k0_pay12 (v22 m c) (v87 m c)
def v125 (c : Dev nD) : FVec F S2x16x8x256 .f32 := Gen.k0_pay13 (v22 m c) (v87 m c)
def v126 (c : Dev nD) : FVec F S2x16x8x256 .f32 := Gen.k0_pay14 (v22 m c) (v87 m c)
def v127 (c : Dev nD) : FVec F S1x16x1x256 .f32 := Gen.k0_pay15 (v22 m c)

/-! ## The state handed along the y axis -/

/-- The device's final local state, [2, 16, 256]. -/
def hsendV (c : Dev nD) : Vec F S2x16x256 .f32 := Gen.k0_pay17 (v121 m c) (v125 m c) (v126 m c) (v127 m c)

/-- What a device with my = 0 stores into its send buffer. -/
def hsendVal (c : Dev nD) : Buf (Elt F) ((c.tc : Thread nD τ).loc cc0_scratch1) := hsendV m c

/-- The entering state a device folds in: zero on my = 0, the y-peer's final local state on my = 1. -/
def hinV (c : Dev nD) : Vec F S2x16x256 .f32 := if c.val % 2 = 0 then Gen.k0_pay18 else hsendV m (ypeer c)

/-- The entering state as the body loads it from the receive buffer: on my = 0 after the store of zeros, on my = 1
    after the y copy has landed. -/
def v160 (c : Dev nD) : Vec F S2x16x256 .f32 :=
  if c.val % 2 = 0 then
    (Memref.whole cc0_scratch2).view.readCov
      [⟨Rect.unit (s := S2x16x256) ![0, 0, 0] S2x16x256.size Gen.inb_S2x16x256_S2x16x256_0_0_0, Gen.k0_pay18 (F := F)⟩]
      (Rect.unit (s := S2x16x256) ![0, 0, 0] S2x16x256.size Gen.inb_S2x16x256_S2x16x256_0_0_0).toLoadRect
  else
    (Memref.whole cc0_scratch2).view.readAt (Elt F)
      (Rect.unit (s := S2x16x256) ![0, 0, 0] S2x16x256.size Gen.inb_S2x16x256_S2x16x256_0_0_0).toLoadRect (hsendV m (ypeer c))

/-- The receive buffer of the y copy as the body loads it. -/
def hinVal (c : Dev nD) : Buf (Elt F) ((c.tc : Thread nD τ).loc cc0_scratch2) := hinV m c

/-! ## The eight result blocks of the device's own rows -/

def v140 (c : Dev nD) : FVec F S2x16x16x16 .f32 := Gen.k0_pay19 (v137 m c)
def v148 (c : Dev nD) : FVec F S16x16x256 .f32 := Gen.k0_pay20 (v22 m c)
def v170 (c : Dev nD) : FVec F S2x16x16x256 .f32 :=
  Gen.k0_pay21 (v22 m c) (v121 m c) (v125 m c) (v126 m c) (v127 m c) (v160 m c)

/-- Batch row 0 of the state buffer. -/
def slab0 (c : Dev nD) : Vec F S1x16x16x16x256 .f32 :=
  hld (hL4 m c) (Rect.unit (s := S2x16x16x16x256) ![0, 0, 0, 0, 0] S1x16x16x16x256.size Gen.inb_S2x16x16x16x256_S1x16x16x16x256_0_0_0_0_0)
/-- Batch row 1 of the state buffer. -/
def slab1 (c : Dev nD) : Vec F S1x16x16x16x256 .f32 :=
  hld (hL4 m c) (Rect.unit (s := S2x16x16x16x256) ![1, 0, 0, 0, 0] S1x16x16x16x256.size Gen.inb_S2x16x16x16x256_S1x16x16x16x256_1_0_0_0_0)

/-- The block of slot s = 4 * b + q in single precision, [1, 64, 256]. -/
def yblk (c : Dev nD) : Fin 8 → FVec F S1x64x256 .f32
  | 0 => Gen.k0_pay23 (v140 m c) (v148 m c) (v170 m c) (slab0 m c)
  | 1 => Gen.k0_pay26 (v140 m c) (v148 m c) (v170 m c) (slab0 m c)
  | 2 => Gen.k0_pay29 (v140 m c) (v148 m c) (v170 m c) (slab0 m c)
  | 3 => Gen.k0_pay32 (v140 m c) (v148 m c) (v170 m c) (slab0 m c)
  | 4 => Gen.k0_pay35 (v140 m c) (v148 m c) (v170 m c) (slab1 m c)
  | 5 => Gen.k0_pay39 (Gen.k0_pay38 (v140 m c) (v148 m c) (v170 m c) (slab1 m c))
  | 6 => Gen.k0_pay44 (Gen.k0_pay41 (v148 m c) (v170 m c) (slab1 m c)) (Gen.k0_pay42 (v140 m c))
  | 7 => Gen.k0_pay50 (v140 m c) (Gen.k0_pay46 (slab1 m c)) (Gen.k0_pay47 (v148 m c)) (Gen.k0_pay48 (v170 m c))

/-- The block of slot s in half precision, [1, 64, 256]. -/
def yblk16 (c : Dev nD) : Fin 8 → FVec F S1x64x256 .bf16
  | 0 => Gen.k0_pay24 (v140 m c) (v148 m c) (v170 m c) (slab0 m c)
  | 1 => Gen.k0_pay27 (v140 m c) (v148 m c) (v170 m c) (slab0 m c)
  | 2 => Gen.k0_pay30 (v140 m c) (v148 m c) (v170 m c) (slab0 m c)
  | 3 => Gen.k0_pay33 (v140 m c) (v148 m c) (v170 m c) (slab0 m c)
  | 4 => Gen.k0_pay37 (Gen.k0_pay36 (v140 m c) (v148 m c) (v170 m c) (slab1 m c))
  | 5 => Gen.k0_pay40 (Gen.k0_pay38 (v140 m c) (v148 m c) (v170 m c) (slab1 m c))
  | 6 => Gen.k0_pay45 (Gen.k0_pay41 (v148 m c) (v170 m c) (slab1 m c)) (Gen.k0_pay42 (v140 m c))
  | 7 => Gen.k0_pay51 (v140 m c) (Gen.k0_pay46 (slab1 m c)) (Gen.k0_pay47 (v148 m c)) (Gen.k0_pay48 (v170 m c))

/-- Slot s of a [2, 256, 256] buffer: rows 64 q .. 64 q + 63 of batch row b, s = 4 * b + q. -/
def slot : Fin 8 → Rect S2x256x256
  | 0 => Rect.unit (s := S2x256x256) ![0, 0, 0] S1x64x256.size Gen.inb_S2x256x256_S1x64x256_0_0_0
  | 1 => Rect.unit (s := S2x256x256) ![0, 64, 0] S1x64x256.size Gen.inb_S2x256x256_S1x64x256_0_64_0
  | 2 => Rect.unit (s := S2x256x256) ![0, 128, 0] S1x64x256.size Gen.inb_S2x256x256_S1x64x256_0_128_0
  | 3 => Rect.unit (s := S2x256x256) ![0, 192, 0] S1x64x256.size Gen.inb_S2x256x256_S1x64x256_0_192_0
  | 4 => Rect.unit (s := S2x256x256) ![1, 0, 0] S1x64x256.size Gen.inb_S2x256x256_S1x64x256_1_0_0
  | 5 => Rect.unit (s := S2x256x256) ![1, 64, 0] S1x64x256.size Gen.inb_S2x256x256_S1x64x256_1_64_0
  | 6 => Rect.unit (s := S2x256x256) ![1, 128, 0] S1x64x256.size Gen.inb_S2x256x256_S1x64x256_1_128_0
  | 7 => Rect.unit (s := S2x256x256) ![1, 192, 0] S1x64x256.size Gen.inb_S2x256x256_S1x64x256_1_192_0

/-- The eight stores into the half-precision send buffer, last first. -/
def obufL (c : Dev nD) : List (View.Piece (Elt F) S2x256x256 .bf16) :=
  [⟨Rect.unit (s := S2x256x256) ![1, 192, 0] S1x64x256.size Gen.inb_S2x256x256_S1x64x256_1_192_0, yblk16 m c 7⟩,
   ⟨Rect.unit (s := S2x256x256) ![1, 128, 0] S1x64x256.size Gen.inb_S2x256x256_S1x64x256_1_128_0, yblk16 m c 6⟩,
   ⟨Rect.unit (s := S2x256x256) ![1, 64, 0] S1x64x256.size Gen.inb_S2x256x256_S1x64x256_1_64_0, yblk16 m c 5⟩,
   ⟨Rect.unit (s := S2x256x256) ![1, 0, 0] S1x64x256.size Gen.inb_S2x256x256_S1x64x256_1_0_0, yblk16 m c 4⟩,
   ⟨Rect.unit (s := S2x256x256) ![0, 192, 0] S1x64x256.size Gen.inb_S2x256x256_S1x64x256_0_192_0, yblk16 m c 3⟩,
   ⟨Rect.unit (s := S2x256x256) ![0, 128, 0] S1x64x256.size Gen.inb_S2x256x256_S1x64x256_0_128_0, yblk16 m c 2⟩,
   ⟨Rect.unit (s := S2x256x256) ![0, 64, 0] S1x64x256.size Gen.inb_S2x256x256_S1x64x256_0_64_0, yblk16 m c 1⟩,
   ⟨Rect.unit (s := S2x256x256) ![0, 0, 0] S1x64x256.size Gen.inb_S2x256x256_S1x64x256_0_0_0, yblk16 m c 0⟩]

/-- The half-precision send buffer after its eight stores, [2, 256, 256]. -/
def obufV (c : Dev nD) : Vec F S2x256x256 .bf16 := View.canon (obufL m c)

/-- The send buffer of the x copies on device c after its eight stores. -/
def obufVal (c : Dev nD) : Buf (Elt F) ((c.tc : Thread nD τ).loc cc0_scratch3) := obufV m c

/-- The receive buffer of the x copies on device c after its eight landings: the x-peer's send buffer. -/
def ibufVal (c : Dev nD) : Buf (Elt F) ((c.tc : Thread nD τ).loc cc0_scratch4) := obufV m (xpeer c)

/-! ## The output staging buffer when the body ends -/

/-- The nine stores into the output staging buffer, last first: the peer's two batch rows widened from what was
    received, then the eight blocks of the device's own rows. -/
def outL (c : Dev nD) : List (View.Piece (Elt F) S4x256x256 .f32) :=
  [⟨Rect.unit (s := S4x256x256) (k0_off7 c) S2x256x256.size (Gen.k0_off7_inb c), Gen.k0_pay1 (obufV m (xpeer c))⟩,
   ⟨Rect.unit (s := S4x256x256) (k0_off6 c 1#32) S1x64x256.size (Gen.k0_off6_inb c 1), yblk m c 7⟩,
   ⟨Rect.unit (s := S4x256x256) (k0_off5 c 1#32) S1x64x256.size (Gen.k0_off5_inb c 1), yblk m c 6⟩,
   ⟨Rect.unit (s := S4x256x256) (k0_off4 c 1#32) S1x64x256.size (Gen.k0_off4_inb c 1), yblk m c 5⟩,
   ⟨Rect.unit (s := S4x256x256) (k0_off3 c 1#32) S1x64x256.size (Gen.k0_off3_inb c 1), yblk m c 4⟩,
   ⟨Rect.unit (s := S4x256x256) (k0_off6 c 0#32) S1x64x256.size (Gen.k0_off6_inb c 0), yblk m c 3⟩,
   ⟨Rect.unit (s := S4x256x256) (k0_off5 c 0#32) S1x64x256.size (Gen.k0_off5_inb c 0), yblk m c 2⟩,
   ⟨Rect.unit (s := S4x256x256) (k0_off4 c 0#32) S1x64x256.size (Gen.k0_off4_inb c 0), yblk m c 1⟩,
   ⟨Rect.unit (s := S4x256x256) (k0_off3 c 0#32) S1x64x256.size (Gen.k0_off3_inb c 0), yblk m c 0⟩]

/-- The output staging buffer when the body ends, [4, 256, 256]. -/
def outV (c : Dev nD) : Vec F S4x256x256 .f32 := View.canon (outL m c)

/-- The output staging buffer of device c when the body ends. -/
def outAt (c : Dev nD) : Buf (Elt F) ((c.tc : Thread nD τ).loc cc0_stg4_0) := outV m c

/-- The same contents read at the result array's location (same shape and element type). -/
def outAtRes (c : Dev nD) : Buf (Elt F) ((c.tc : Thread nD τ).loc main_v1) := outV m c

end Cert.Kernel.KVal

end
-- ==== Proof.KProtoBits.lean ====
/-
  The cross-device protocol of the kernel on the 2×2 mesh (device c = 2 * mx + my), under the rounds discipline.

  Every semaphore cell has ONE round. A device's barrier cell has two duties of one unit: one paid by its
  y-peer (same mx, other my) and one by its x-peer (other mx, same my). The y-peer's unit hands a device with
  my = 0 the peer's state-receive buffer and that the peer's y-receive cell is at its first round (what the
  state copy into the peer needs); the x-peer's unit hands over the peer's half-precision receive buffer and that
  the peer's eight x-receive cells are at their first round (what the eight row copies into the peer need).
  The y-send cell of a device with my = 0 and the y-receive cell of a device with my = 1 have one duty, the
  state copy; the eight x-send and eight x-receive cells of every device one duty each, the copy of slot s
  (rows 64 q .. 64 q + 63 of batch row b, s = 4 * b + q). A receive duty's payload states the CONTENTS that
  landed. Levels: barrier cells below y-receive cells below x-receive cells; a device waits on a cell only
  while everything it still owes lies above it.
-/
import proofs.«900482_g7700000000000483_dist_ssm_v7x_xy2x2_y_b4_s256_d256_n16_f32_1_alg».proof.Proof.KValBits
import proofs.«900482_g7700000000000483_dist_ssm_v7x_xy2x2_y_b4_s256_d256_n16_f32_1_alg».proof.Proof.Gen.Kernel.Launch
import proofs.«900482_g7700000000000483_dist_ssm_v7x_xy2x2_y_b4_s256_d256_n16_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.KProto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.KVal (ypeer xpeer ypeer_ypeer xpeer_xpeer)

variable {F : FTy → Type} [FloatOps F]

/-! ## The resource algebra: the pipeline's copy (duties `Unit`) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The buffers and their slots -/

abbrev x0M : Memref sig .tc .vmem S4x256x256 .f32 := Memref.whole cc0_stg0_0
abbrev x1M : Memref sig .tc .vmem S256x16 .f32 := Memref.whole cc0_stg1_0
abbrev x2M : Memref sig .tc .vmem S4x256x16 .f32 := Memref.whole cc0_stg2_0
abbrev x3M : Memref sig .tc .vmem S4x256x16 .f32 := Memref.whole cc0_stg3_0
abbrev x4M : Memref sig .tc .vmem S4x256x256 .f32 := Memref.whole cc0_stg4_0
abbrev h0M : Memref sig .tc .vmem S2x16x16x16x256 .f32 := Memref.whole cc0_scratch0
abbrev hsM : Memref sig .tc .vmem S2x16x256 .f32 := Memref.whole cc0_scratch1
abbrev hiM : Memref sig .tc .vmem S2x16x256 .f32 := Memref.whole cc0_scratch2
abbrev obM : Memref sig .tc .vmem S2x256x256 .bf16 := Memref.whole cc0_scratch3
abbrev ibM : Memref sig .tc .vmem S2x256x256 .bf16 := Memref.whole cc0_scratch4

/-- Slot `s` of a [2, 256, 256] buffer: rows 64 q .. 64 q + 63 of batch row b, s = 4 * b + q. -/
abbrev sl0 : Rect S2x256x256 := Rect.unit (s := S2x256x256) ![0, 0, 0] S1x64x256.size inb_S2x256x256_S1x64x256_0_0_0
abbrev sl1 : Rect S2x256x256 := Rect.unit (s := S2x256x256) ![0, 64, 0] S1x64x256.size inb_S2x256x256_S1x64x256_0_64_0
abbrev sl2 : Rect S2x256x256 := Rect.unit (s := S2x256x256) ![0, 128, 0] S1x64x256.size inb_S2x256x256_S1x64x256_0_128_0
abbrev sl3 : Rect S2x256x256 := Rect.unit (s := S2x256x256) ![0, 192, 0] S1x64x256.size inb_S2x256x256_S1x64x256_0_192_0
abbrev sl4 : Rect S2x256x256 := Rect.unit (s := S2x256x256) ![1, 0, 0] S1x64x256.size inb_S2x256x256_S1x64x256_1_0_0
abbrev sl5 : Rect S2x256x256 := Rect.unit (s := S2x256x256) ![1, 64, 0] S1x64x256.size inb_S2x256x256_S1x64x256_1_64_0
abbrev sl6 : Rect S2x256x256 := Rect.unit (s := S2x256x256) ![1, 128, 0] S1x64x256.size inb_S2x256x256_S1x64x256_1_128_0
abbrev sl7 : Rect S2x256x256 := Rect.unit (s := S2x256x256) ![1, 192, 0] S1x64x256.size inb_S2x256x256_S1x64x256_1_192_0

abbrev obS0 : Memref sig .tc .vmem S64x256 .bf16 := (obM.slice (Rect.unit (s := S2x256x256) ![0, 0, 0] S1x64x256.size inb_S2x256x256_S1x64x256_0_0_0) (fun _ => rfl)).squeeze S64x256 squeezes_S1x64x256_S64x256
abbrev ibS0 : Memref sig .tc .vmem S64x256 .bf16 := (ibM.slice (Rect.unit (s := S2x256x256) ![0, 0, 0] S1x64x256.size inb_S2x256x256_S1x64x256_0_0_0) (fun _ => rfl)).squeeze S64x256 squeezes_S1x64x256_S64x256
abbrev obS1 : Memref sig .tc .vmem S64x256 .bf16 := (obM.slice (Rect.unit (s := S2x256x256) ![0, 64, 0] S1x64x256.size inb_S2x256x256_S1x64x256_0_64_0) (fun _ => rfl)).squeeze S64x256 squeezes_S1x64x256_S64x256
abbrev ibS1 : Memref sig .tc .vmem S64x256 .bf16 := (ibM.slice (Rect.unit (s := S2x256x256) ![0, 64, 0] S1x64x256.size inb_S2x256x256_S1x64x256_0_64_0) (fun _ => rfl)).squeeze S64x256 squeezes_S1x64x256_S64x256
abbrev obS2 : Memref sig .tc .vmem S64x256 .bf16 := (obM.slice (Rect.unit (s := S2x256x256) ![0, 128, 0] S1x64x256.size inb_S2x256x256_S1x64x256_0_128_0) (fun _ => rfl)).squeeze S64x256 squeezes_S1x64x256_S64x256
abbrev ibS2 : Memref sig .tc .vmem S64x256 .bf16 := (ibM.slice (Rect.unit (s := S2x256x256) ![0, 128, 0] S1x64x256.size inb_S2x256x256_S1x64x256_0_128_0) (fun _ => rfl)).squeeze S64x256 squeezes_S1x64x256_S64x256
abbrev obS3 : Memref sig .tc .vmem S64x256 .bf16 := (obM.slice (Rect.unit (s := S2x256x256) ![0, 192, 0] S1x64x256.size inb_S2x256x256_S1x64x256_0_192_0) (fun _ => rfl)).squeeze S64x256 squeezes_S1x64x256_S64x256
abbrev ibS3 : Memref sig .tc .vmem S64x256 .bf16 := (ibM.slice (Rect.unit (s := S2x256x256) ![0, 192, 0] S1x64x256.size inb_S2x256x256_S1x64x256_0_192_0) (fun _ => rfl)).squeeze S64x256 squeezes_S1x64x256_S64x256
abbrev obS4 : Memref sig .tc .vmem S64x256 .bf16 := (obM.slice (Rect.unit (s := S2x256x256) ![1, 0, 0] S1x64x256.size inb_S2x256x256_S1x64x256_1_0_0) (fun _ => rfl)).squeeze S64x256 squeezes_S1x64x256_S64x256
abbrev ibS4 : Memref sig .tc .vmem S64x256 .bf16 := (ibM.slice (Rect.unit (s := S2x256x256) ![1, 0, 0] S1x64x256.size inb_S2x256x256_S1x64x256_1_0_0) (fun _ => rfl)).squeeze S64x256 squeezes_S1x64x256_S64x256
abbrev obS5 : Memref sig .tc .vmem S64x256 .bf16 := (obM.slice (Rect.unit (s := S2x256x256) ![1, 64, 0] S1x64x256.size inb_S2x256x256_S1x64x256_1_64_0) (fun _ => rfl)).squeeze S64x256 squeezes_S1x64x256_S64x256
abbrev ibS5 : Memref sig .tc .vmem S64x256 .bf16 := (ibM.slice (Rect.unit (s := S2x256x256) ![1, 64, 0] S1x64x256.size inb_S2x256x256_S1x64x256_1_64_0) (fun _ => rfl)).squeeze S64x256 squeezes_S1x64x256_S64x256
abbrev obS6 : Memref sig .tc .vmem S64x256 .bf16 := (obM.slice (Rect.unit (s := S2x256x256) ![1, 128, 0] S1x64x256.size inb_S2x256x256_S1x64x256_1_128_0) (fun _ => rfl)).squeeze S64x256 squeezes_S1x64x256_S64x256
abbrev ibS6 : Memref sig .tc .vmem S64x256 .bf16 := (ibM.slice (Rect.unit (s := S2x256x256) ![1, 128, 0] S1x64x256.size inb_S2x256x256_S1x64x256_1_128_0) (fun _ => rfl)).squeeze S64x256 squeezes_S1x64x256_S64x256
abbrev obS7 : Memref sig .tc .vmem S64x256 .bf16 := (obM.slice (Rect.unit (s := S2x256x256) ![1, 192, 0] S1x64x256.size inb_S2x256x256_S1x64x256_1_192_0) (fun _ => rfl)).squeeze S64x256 squeezes_S1x64x256_S64x256
abbrev ibS7 : Memref sig .tc .vmem S64x256 .bf16 := (ibM.slice (Rect.unit (s := S2x256x256) ![1, 192, 0] S1x64x256.size inb_S2x256x256_S1x64x256_1_192_0) (fun _ => rfl)).squeeze S64x256 squeezes_S1x64x256_S64x256

/-- Slot `s` of the half-precision send buffer, as the copies take it. -/
def obS : Fin 8 → Memref sig .tc .vmem S64x256 .bf16
  | 0 => obS0
  | 1 => obS1
  | 2 => obS2
  | 3 => obS3
  | 4 => obS4
  | 5 => obS5
  | 6 => obS6
  | 7 => obS7
/-- Slot `s` of the half-precision receive buffer. -/
def ibS : Fin 8 → Memref sig .tc .vmem S64x256 .bf16
  | 0 => ibS0
  | 1 => ibS1
  | 2 => ibS2
  | 3 => ibS3
  | 4 => ibS4
  | 5 => ibS5
  | 6 => ibS6
  | 7 => ibS7

/-! ## The semaphores and the cells -/

/-- The barrier semaphore of collective id 0 (not scoped to the launch). -/
abbrev barS : Sem sig := (SemArray.scalar (sig.barrier 0 rfl) : Sems sig S_).sem
abbrev ysS : DmaSem sig := cc0_scratch5.sem
abbrev yrS : DmaSem sig := cc0_scratch6.sem
abbrev xsS0 : DmaSem sig := ((cc0_scratch7.slice (Rect.unit (s := S8) ![0] S1.size inb_S8_S1_0)).squeeze S_ squeezes_S1_S_).sem
abbrev xrS0 : DmaSem sig := ((cc0_scratch8.slice (Rect.unit (s := S8) ![0] S1.size inb_S8_S1_0)).squeeze S_ squeezes_S1_S_).sem
abbrev xsS1 : DmaSem sig := ((cc0_scratch7.slice (Rect.unit (s := S8) ![1] S1.size inb_S8_S1_1)).squeeze S_ squeezes_S1_S_).sem
abbrev xrS1 : DmaSem sig := ((cc0_scratch8.slice (Rect.unit (s := S8) ![1] S1.size inb_S8_S1_1)).squeeze S_ squeezes_S1_S_).sem
abbrev xsS2 : DmaSem sig := ((cc0_scratch7.slice (Rect.unit (s := S8) ![2] S1.size inb_S8_S1_2)).squeeze S_ squeezes_S1_S_).sem
abbrev xrS2 : DmaSem sig := ((cc0_scratch8.slice (Rect.unit (s := S8) ![2] S1.size inb_S8_S1_2)).squeeze S_ squeezes_S1_S_).sem
abbrev xsS3 : DmaSem sig := ((cc0_scratch7.slice (Rect.unit (s := S8) ![3] S1.size inb_S8_S1_3)).squeeze S_ squeezes_S1_S_).sem
abbrev xrS3 : DmaSem sig := ((cc0_scratch8.slice (Rect.unit (s := S8) ![3] S1.size inb_S8_S1_3)).squeeze S_ squeezes_S1_S_).sem
abbrev xsS4 : DmaSem sig := ((cc0_scratch7.slice (Rect.unit (s := S8) ![4] S1.size inb_S8_S1_4)).squeeze S_ squeezes_S1_S_).sem
abbrev xrS4 : DmaSem sig := ((cc0_scratch8.slice (Rect.unit (s := S8) ![4] S1.size inb_S8_S1_4)).squeeze S_ squeezes_S1_S_).sem
abbrev xsS5 : DmaSem sig := ((cc0_scratch7.slice (Rect.unit (s := S8) ![5] S1.size inb_S8_S1_5)).squeeze S_ squeezes_S1_S_).sem
abbrev xrS5 : DmaSem sig := ((cc0_scratch8.slice (Rect.unit (s := S8) ![5] S1.size inb_S8_S1_5)).squeeze S_ squeezes_S1_S_).sem
abbrev xsS6 : DmaSem sig := ((cc0_scratch7.slice (Rect.unit (s := S8) ![6] S1.size inb_S8_S1_6)).squeeze S_ squeezes_S1_S_).sem
abbrev xrS6 : DmaSem sig := ((cc0_scratch8.slice (Rect.unit (s := S8) ![6] S1.size inb_S8_S1_6)).squeeze S_ squeezes_S1_S_).sem
abbrev xsS7 : DmaSem sig := ((cc0_scratch7.slice (Rect.unit (s := S8) ![7] S1.size inb_S8_S1_7)).squeeze S_ squeezes_S1_S_).sem
abbrev xrS7 : DmaSem sig := ((cc0_scratch8.slice (Rect.unit (s := S8) ![7] S1.size inb_S8_S1_7)).squeeze S_ squeezes_S1_S_).sem

/-- The send semaphore of slot `s`. -/
def xsS : Fin 8 → DmaSem sig
  | 0 => xsS0
  | 1 => xsS1
  | 2 => xsS2
  | 3 => xsS3
  | 4 => xsS4
  | 5 => xsS5
  | 6 => xsS6
  | 7 => xsS7
/-- The receive semaphore of slot `s`. -/
def xrS : Fin 8 → DmaSem sig
  | 0 => xrS0
  | 1 => xrS1
  | 2 => xrS2
  | 3 => xrS3
  | 4 => xrS4
  | 5 => xrS5
  | 6 => xrS6
  | 7 => xrS7

abbrev barCell (c : Dev nD) : GSem nD τ sig := ((c : Thread nD τ), .reg barS)
abbrev ysCell (c : Dev nD) : GSem nD τ sig := ((c : Thread nD τ), .dma ysS)
abbrev yrCell (c : Dev nD) : GSem nD τ sig := ((c : Thread nD τ), .dma yrS)
abbrev xsCell (c : Dev nD) (s : Fin 8) : GSem nD τ sig := ((c : Thread nD τ), .dma (xsS s))
abbrev xrCell (c : Dev nD) (s : Fin 8) : GSem nD τ sig := ((c : Thread nD τ), .dma (xrS s))

/-- What a cell is for, read off its semaphore's number in the pool. -/
inductive CellKind where
  | bar | ys | yr | xs (s : Fin 8) | xr (s : Fin 8) | other
deriving DecidableEq

def kindOf : SemLoc sig → CellKind
  | .reg b => if b = barS then .bar else .other
  | .dma q =>
    if q.val = 5 then .ys else if q.val = 6 then .yr
    else if h : 7 ≤ q.val ∧ q.val < 15 then .xs ⟨q.val - 7, by omega⟩
    else if h : 15 ≤ q.val ∧ q.val < 23 then .xr ⟨q.val - 15, by omega⟩
    else .other

theorem kind_bar : kindOf (.reg barS) = .bar := by
  show (if barS = barS then CellKind.bar else CellKind.other) = _
  exact if_pos rfl
theorem kind_ys : kindOf (.dma ysS) = .ys := rfl
theorem kind_yr : kindOf (.dma yrS) = .yr := rfl
theorem kind_xs (s : Fin 8) : kindOf (.dma (xsS s)) = .xs s := by fin_cases s <;> rfl
theorem kind_xr (s : Fin 8) : kindOf (.dma (xrS s)) = .xr s := by fin_cases s <;> rfl

/-- The units a copy of the state buffer credits, and the units a copy of one slot credits. -/
abbrev NY : ℕ := (hiM : Memref sig .tc .vmem S2x16x256 .f32).view.dmaCredit
abbrev NX : ℕ := (ibS0 : Memref sig .tc .vmem S64x256 .bf16).view.dmaCredit
theorem NY_pos : 0 < NY := View.dmaCredit_pos _ (by decide)
theorem NX_pos : 0 < NX := View.dmaCredit_pos _ (by decide)
theorem NX_ib (s : Fin 8) : (ibS s).view.dmaCredit = NX := by fin_cases s <;> rfl

/-! ## What the landings hand over -/

/-- The y-peer's barrier unit: to a device with my = 0, the peer's state-receive buffer at any contents and that
    the peer's y-receive cell is at its first round; to a device with my = 1, nothing. -/
def barPayY (c : Dev nD) : sProp 𝕄 :=
  if c.val % 2 = 0 then
    iprop((∃ f : Buf (Elt F) (hiM.view.loc (ypeer c : Thread nD τ)), hiM.view.loc (ypeer c : Thread nD τ) ↦{fullShare} f)
      ∗ reached ER ((ypeer c : Thread nD τ), .dma yrS) 0)
  else iprop(emp)

/-- The x-peer's barrier unit: the eight slots of the peer's half-precision receive buffer, each at any contents,
    and that the peer's eight x-receive cells are at their first round. -/
def barPayX (c : Dev nD) : sProp 𝕄 :=
  iprop((∃ f : Buf (Elt F) (ibS0.view.loc (xpeer c : Thread nD τ)), ibS0.view.loc (xpeer c : Thread nD τ) ↦[ibS0.view.set]{fullShare} f)
    ∗ (∃ f : Buf (Elt F) (ibS1.view.loc (xpeer c : Thread nD τ)), ibS1.view.loc (xpeer c : Thread nD τ) ↦[ibS1.view.set]{fullShare} f)
    ∗ (∃ f : Buf (Elt F) (ibS2.view.loc (xpeer c : Thread nD τ)), ibS2.view.loc (xpeer c : Thread nD τ) ↦[ibS2.view.set]{fullShare} f)
    ∗ (∃ f : Buf (Elt F) (ibS3.view.loc (xpeer c : Thread nD τ)), ibS3.view.loc (xpeer c : Thread nD τ) ↦[ibS3.view.set]{fullShare} f)
    ∗ (∃ f : Buf (Elt F) (ibS4.view.loc (xpeer c : Thread nD τ)), ibS4.view.loc (xpeer c : Thread nD τ) ↦[ibS4.view.set]{fullShare} f)
    ∗ (∃ f : Buf (Elt F) (ibS5.view.loc (xpeer c : Thread nD τ)), ibS5.view.loc (xpeer c : Thread nD τ) ↦[ibS5.view.set]{fullShare} f)
    ∗ (∃ f : Buf (Elt F) (ibS6.view.loc (xpeer c : Thread nD τ)), ibS6.view.loc (xpeer c : Thread nD τ) ↦[ibS6.view.set]{fullShare} f)
    ∗ (∃ f : Buf (Elt F) (ibS7.view.loc (xpeer c : Thread nD τ)), ibS7.view.loc (xpeer c : Thread nD τ) ↦[ibS7.view.set]{fullShare} f)
    ∗ reached ER ((xpeer c : Thread nD τ), .dma xrS0) 0 ∗ reached ER ((xpeer c : Thread nD τ), .dma xrS1) 0 ∗ reached ER ((xpeer c : Thread nD τ), .dma xrS2) 0 ∗ reached ER ((xpeer c : Thread nD τ), .dma xrS3) 0 ∗ reached ER ((xpeer c : Thread nD τ), .dma xrS4) 0 ∗ reached ER ((xpeer c : Thread nD τ), .dma xrS5) 0 ∗ reached ER ((xpeer c : Thread nD τ), .dma xrS6) 0 ∗ reached ER ((xpeer c : Thread nD τ), .dma xrS7) 0)

/-- The state copy's departure gives the send buffer back; its landing leaves the sender's state in the receive buffer. -/
def ysPay (c : Dev nD) : sProp 𝕄 :=
  iprop(∃ f : Buf (Elt F) (hsM.view.loc (c : Thread nD τ)), hsM.view.loc (c : Thread nD τ) ↦{fullShare} f)
def yrPay (c : Dev nD) : sProp 𝕄 := hiM.view.loc (c : Thread nD τ) ↦{fullShare} KVal.hinVal m c
/-- The copy of slot `s`: its departure gives slot `s` of the send buffer back; -/
def xsPay (c : Dev nD) : Fin 8 → sProp 𝕄
  | 0 => iprop(∃ f : Buf (Elt F) (obS0.view.loc (c : Thread nD τ)), obS0.view.loc (c : Thread nD τ) ↦[obS0.view.set]{fullShare} f)
  | 1 => iprop(∃ f : Buf (Elt F) (obS1.view.loc (c : Thread nD τ)), obS1.view.loc (c : Thread nD τ) ↦[obS1.view.set]{fullShare} f)
  | 2 => iprop(∃ f : Buf (Elt F) (obS2.view.loc (c : Thread nD τ)), obS2.view.loc (c : Thread nD τ) ↦[obS2.view.set]{fullShare} f)
  | 3 => iprop(∃ f : Buf (Elt F) (obS3.view.loc (c : Thread nD τ)), obS3.view.loc (c : Thread nD τ) ↦[obS3.view.set]{fullShare} f)
  | 4 => iprop(∃ f : Buf (Elt F) (obS4.view.loc (c : Thread nD τ)), obS4.view.loc (c : Thread nD τ) ↦[obS4.view.set]{fullShare} f)
  | 5 => iprop(∃ f : Buf (Elt F) (obS5.view.loc (c : Thread nD τ)), obS5.view.loc (c : Thread nD τ) ↦[obS5.view.set]{fullShare} f)
  | 6 => iprop(∃ f : Buf (Elt F) (obS6.view.loc (c : Thread nD τ)), obS6.view.loc (c : Thread nD τ) ↦[obS6.view.set]{fullShare} f)
  | 7 => iprop(∃ f : Buf (Elt F) (obS7.view.loc (c : Thread nD τ)), obS7.view.loc (c : Thread nD τ) ↦[obS7.view.set]{fullShare} f)
/-- its landing leaves the x-peer's half-precision rows of slot `s` in slot `s` of the receive buffer, written over
    whatever the buffer held. -/
def xrPay (c : Dev nD) : Fin 8 → sProp 𝕄
  | 0 => iprop(∃ f : Buf (Elt F) (ibM.view.loc (c : Thread nD τ)), (ibM.access sl0).loc (c : Thread nD τ) ↦[(ibM.access sl0).set]{fullShare} (ibM.access sl0).write (Elt F) f (KVal.yblk16 m (xpeer c) 0) Finset.univ)
  | 1 => iprop(∃ f : Buf (Elt F) (ibM.view.loc (c : Thread nD τ)), (ibM.access sl1).loc (c : Thread nD τ) ↦[(ibM.access sl1).set]{fullShare} (ibM.access sl1).write (Elt F) f (KVal.yblk16 m (xpeer c) 1) Finset.univ)
  | 2 => iprop(∃ f : Buf (Elt F) (ibM.view.loc (c : Thread nD τ)), (ibM.access sl2).loc (c : Thread nD τ) ↦[(ibM.access sl2).set]{fullShare} (ibM.access sl2).write (Elt F) f (KVal.yblk16 m (xpeer c) 2) Finset.univ)
  | 3 => iprop(∃ f : Buf (Elt F) (ibM.view.loc (c : Thread nD τ)), (ibM.access sl3).loc (c : Thread nD τ) ↦[(ibM.access sl3).set]{fullShare} (ibM.access sl3).write (Elt F) f (KVal.yblk16 m (xpeer c) 3) Finset.univ)
  | 4 => iprop(∃ f : Buf (Elt F) (ibM.view.loc (c : Thread nD τ)), (ibM.access sl4).loc (c : Thread nD τ) ↦[(ibM.access sl4).set]{fullShare} (ibM.access sl4).write (Elt F) f (KVal.yblk16 m (xpeer c) 4) Finset.univ)
  | 5 => iprop(∃ f : Buf (Elt F) (ibM.view.loc (c : Thread nD τ)), (ibM.access sl5).loc (c : Thread nD τ) ↦[(ibM.access sl5).set]{fullShare} (ibM.access sl5).write (Elt F) f (KVal.yblk16 m (xpeer c) 5) Finset.univ)
  | 6 => iprop(∃ f : Buf (Elt F) (ibM.view.loc (c : Thread nD τ)), (ibM.access sl6).loc (c : Thread nD τ) ↦[(ibM.access sl6).set]{fullShare} (ibM.access sl6).write (Elt F) f (KVal.yblk16 m (xpeer c) 6) Finset.univ)
  | 7 => iprop(∃ f : Buf (Elt F) (ibM.view.loc (c : Thread nD τ)), (ibM.access sl7).loc (c : Thread nD τ) ↦[(ibM.access sl7).set]{fullShare} (ibM.access sl7).write (Elt F) f (KVal.yblk16 m (xpeer c) 7) Finset.univ)

/-! ## The schedule -/

/-- One round. A barrier cell has the duties `false` (from the y-peer) and `true` (from the x-peer) of one unit;
    the y-send cell of a device with my = 0, the y-receive cell of a device with my = 1 and every x cell the duty
    `false` of its copy's credit. -/
def sched : Rounds.Schedule (GSem nD τ sig) Bool 𝕄 where
  duties g r :=
    if r = 0 ∧ g.1.2 = .tc then
      match kindOf g.2 with
      | .bar => Finset.univ
      | .ys => if g.1.1.val % 2 = 0 then {false} else ∅
      | .yr => if g.1.1.val % 2 = 1 then {false} else ∅
      | .xs _ => {false}
      | .xr _ => {false}
      | .other => ∅
    else ∅
  unitless _ := False
  amount g _ _ :=
    match kindOf g.2 with
    | .bar => 1
    | .ys => NY
    | .yr => NY
    | .xs _ => NX
    | .xr _ => NX
    | .other => 1
  payload g _ d :=
    match kindOf g.2 with
    | .bar => if d then barPayX g.1.1 else barPayY g.1.1
    | .ys => ysPay g.1.1
    | .yr => yrPay m g.1.1
    | .xs s => xsPay g.1.1 s
    | .xr s => xrPay m g.1.1 s
    | .other => iprop(emp)
  amount_pos g _ _ _ := by
    cases kindOf g.2 <;> first | exact Nat.one_pos | exact NY_pos | exact NX_pos

set_option synthInstance.maxHeartbeats 400000 in
set_option maxHeartbeats 4000000 in
instance sched_payload_storable (g : GSem nD τ sig) (r : ℕ) (d : Bool) :
    BI.Storable (upEmb : UEmb _ 𝕄) ((sched (F := F) m).payload g r d) := by
  show BI.Storable upEmb (match kindOf g.2 with
    | .bar => if d then barPayX g.1.1 else barPayY g.1.1
    | .ys => ysPay g.1.1
    | .yr => yrPay m g.1.1
    | .xs s => xsPay g.1.1 s
    | .xr s => xrPay m g.1.1 s
    | .other => iprop(emp))
  unfold barPayX barPayY ysPay yrPay xsPay xrPay
  (repeat' split) <;> infer_instance

/-! ## The schedule's tables, cell by cell -/

section Sched
variable (c : Dev nD)

@[sl_rounds] theorem duties_bar : (sched (F := F) m).duties (barCell c) 0 = Finset.univ := by
  dsimp only [sched]; rw [if_pos ⟨rfl, rfl⟩, kind_bar]
@[sl_rounds] theorem duties_ys (h : c.val % 2 = 0) : (sched (F := F) m).duties (ysCell c) 0 = {false} := by
  dsimp only [sched]; rw [if_pos ⟨rfl, rfl⟩, kind_ys]; exact if_pos h
theorem duties_ys_odd (h : c.val % 2 = 1) : (sched (F := F) m).duties (ysCell c) 0 = ∅ := by
  dsimp only [sched]; rw [if_pos ⟨rfl, rfl⟩, kind_ys]; exact if_neg (by omega)
@[sl_rounds] theorem duties_yr (h : c.val % 2 = 1) : (sched (F := F) m).duties (yrCell c) 0 = {false} := by
  dsimp only [sched]; rw [if_pos ⟨rfl, rfl⟩, kind_yr]; exact if_pos h
theorem duties_yr_even (h : c.val % 2 = 0) : (sched (F := F) m).duties (yrCell c) 0 = ∅ := by
  dsimp only [sched]; rw [if_pos ⟨rfl, rfl⟩, kind_yr]; exact if_neg (by omega)
@[sl_rounds] theorem duties_xs (s : Fin 8) : (sched (F := F) m).duties (xsCell c s) 0 = {false} := by
  dsimp only [sched]; rw [if_pos ⟨rfl, rfl⟩, kind_xs]
@[sl_rounds] theorem duties_xr (s : Fin 8) : (sched (F := F) m).duties (xrCell c s) 0 = {false} := by
  dsimp only [sched]; rw [if_pos ⟨rfl, rfl⟩, kind_xr]
theorem duties_later (g : GSem nD τ sig) : ∀ r, 1 ≤ r → (sched (F := F) m).duties g r = ∅ :=
  fun r hr => by dsimp only [sched]; rw [if_neg fun h => by omega]
/-- A y cell nobody pays has no duty in any round. -/
theorem duties_ys_none (h : c.val % 2 = 1) : ∀ r, 0 ≤ r → (sched (F := F) m).duties (ysCell c) r = ∅ := fun r _ => by
  rcases Nat.eq_zero_or_pos r with rfl | hr
  · exact duties_ys_odd m c h
  · exact duties_later m _ r hr
theorem duties_yr_none (h : c.val % 2 = 0) : ∀ r, 0 ≤ r → (sched (F := F) m).duties (yrCell c) r = ∅ := fun r _ => by
  rcases Nat.eq_zero_or_pos r with rfl | hr
  · exact duties_yr_even m c h
  · exact duties_later m _ r hr

@[sl_rounds] theorem amount_bar (d : Bool) : (sched (F := F) m).amount (barCell c) 0 d = 1 := by dsimp only [sched]; rw [kind_bar]
@[sl_rounds] theorem amount_ys (d : Bool) : (sched (F := F) m).amount (ysCell c) 0 d = NY := by dsimp only [sched]; rw [kind_ys]
@[sl_rounds] theorem amount_yr (d : Bool) : (sched (F := F) m).amount (yrCell c) 0 d = NY := by dsimp only [sched]; rw [kind_yr]
@[sl_rounds] theorem amount_xs (s : Fin 8) (d : Bool) : (sched (F := F) m).amount (xsCell c s) 0 d = NX := by dsimp only [sched]; rw [kind_xs]
@[sl_rounds] theorem amount_xr (s : Fin 8) (d : Bool) : (sched (F := F) m).amount (xrCell c s) 0 d = NX := by dsimp only [sched]; rw [kind_xr]

@[sl_rounds] theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
@[sl_rounds] theorem expect_ys (h : c.val % 2 = 0) : (sched (F := F) m).expect (ysCell c) 0 = NY := by
  unfold Schedule.expect Schedule.amountOf; rw [duties_ys m c h, Finset.sum_singleton, amount_ys]
@[sl_rounds] theorem expect_yr (h : c.val % 2 = 1) : (sched (F := F) m).expect (yrCell c) 0 = NY := by
  unfold Schedule.expect Schedule.amountOf; rw [duties_yr m c h, Finset.sum_singleton, amount_yr]
@[sl_rounds] theorem expect_xs (s : Fin 8) : (sched (F := F) m).expect (xsCell c s) 0 = NX := by
  unfold Schedule.expect Schedule.amountOf; rw [duties_xs, Finset.sum_singleton, amount_xs]
@[sl_rounds] theorem expect_xr (s : Fin 8) : (sched (F := F) m).expect (xrCell c s) 0 = NX := by
  unfold Schedule.expect Schedule.amountOf; rw [duties_xr, Finset.sum_singleton, amount_xr]

@[sl_rounds] theorem payload_bar_true : (sched (F := F) m).payload (barCell c) 0 true = barPayX c := by
  dsimp only [sched]; rw [kind_bar]; exact if_pos rfl
@[sl_rounds] theorem payload_bar_false : (sched (F := F) m).payload (barCell c) 0 false = barPayY c := by
  dsimp only [sched]; rw [kind_bar]; exact if_neg Bool.false_ne_true
@[sl_rounds] theorem payload_ys (d : Bool) : (sched (F := F) m).payload (ysCell c) 0 d = ysPay c := by dsimp only [sched]; rw [kind_ys]
@[sl_rounds] theorem payload_yr (d : Bool) : (sched (F := F) m).payload (yrCell c) 0 d = yrPay m c := by dsimp only [sched]; rw [kind_yr]
@[sl_rounds] theorem payload_xs (s : Fin 8) (d : Bool) : (sched (F := F) m).payload (xsCell c s) 0 d = xsPay c s := by dsimp only [sched]; rw [kind_xs]
@[sl_rounds] theorem payload_xr (s : Fin 8) (d : Bool) : (sched (F := F) m).payload (xrCell c s) 0 d = xrPay m c s := by dsimp only [sched]; rw [kind_xr]

/-- The rest of a barrier cell's round, no duty taken: the y-peer's payload and the x-peer's. -/
theorem rest_bar : bigSep ((sched (F := F) m).duties (barCell c) 0 \ ∅) (fun d => (sched (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_ys (h : c.val % 2 = 0) : bigSep ((sched (F := F) m).duties (ysCell c) 0 \ ∅) (fun d => (sched (F := F) m).payload (ysCell c) 0 d) = ysPay c := by
  rw [Finset.sdiff_empty, duties_ys m c h, bigSep_singleton, payload_ys]
theorem rest_yr (h : c.val % 2 = 1) : bigSep ((sched (F := F) m).duties (yrCell c) 0 \ ∅) (fun d => (sched (F := F) m).payload (yrCell c) 0 d) = yrPay m c := by
  rw [Finset.sdiff_empty, duties_yr m c h, bigSep_singleton, payload_yr]
theorem rest_xs (s : Fin 8) : bigSep ((sched (F := F) m).duties (xsCell c s) 0 \ ∅) (fun d => (sched (F := F) m).payload (xsCell c s) 0 d) = xsPay c s := by
  rw [Finset.sdiff_empty, duties_xs, bigSep_singleton, payload_xs]
theorem rest_xr (s : Fin 8) : bigSep ((sched (F := F) m).duties (xrCell c s) 0 \ ∅) (fun d => (sched (F := F) m).payload (xrCell c s) 0 d) = xrPay m c s := by
  rw [Finset.sdiff_empty, duties_xr, bigSep_singleton, payload_xr]

end Sched

/-! ## The payloads spelt out -/

@[sl_rounds] theorem barPayX_def (c : Dev nD) : barPayX (F := F) c =
    iprop((∃ f : Buf (Elt F) (ibS0.view.loc (xpeer c : Thread nD τ)), ibS0.view.loc (xpeer c : Thread nD τ) ↦[ibS0.view.set]{fullShare} f)
    ∗ (∃ f : Buf (Elt F) (ibS1.view.loc (xpeer c : Thread nD τ)), ibS1.view.loc (xpeer c : Thread nD τ) ↦[ibS1.view.set]{fullShare} f)
    ∗ (∃ f : Buf (Elt F) (ibS2.view.loc (xpeer c : Thread nD τ)), ibS2.view.loc (xpeer c : Thread nD τ) ↦[ibS2.view.set]{fullShare} f)
    ∗ (∃ f : Buf (Elt F) (ibS3.view.loc (xpeer c : Thread nD τ)), ibS3.view.loc (xpeer c : Thread nD τ) ↦[ibS3.view.set]{fullShare} f)
    ∗ (∃ f : Buf (Elt F) (ibS4.view.loc (xpeer c : Thread nD τ)), ibS4.view.loc (xpeer c : Thread nD τ) ↦[ibS4.view.set]{fullShare} f)
    ∗ (∃ f : Buf (Elt F) (ibS5.view.loc (xpeer c : Thread nD τ)), ibS5.view.loc (xpeer c : Thread nD τ) ↦[ibS5.view.set]{fullShare} f)
    ∗ (∃ f : Buf (Elt F) (ibS6.view.loc (xpeer c : Thread nD τ)), ibS6.view.loc (xpeer c : Thread nD τ) ↦[ibS6.view.set]{fullShare} f)
    ∗ (∃ f : Buf (Elt F) (ibS7.view.loc (xpeer c : Thread nD τ)), ibS7.view.loc (xpeer c : Thread nD τ) ↦[ibS7.view.set]{fullShare} f)
    ∗ reached ER ((xpeer c : Thread nD τ), .dma xrS0) 0 ∗ reached ER ((xpeer c : Thread nD τ), .dma xrS1) 0 ∗ reached ER ((xpeer c : Thread nD τ), .dma xrS2) 0 ∗ reached ER ((xpeer c : Thread nD τ), .dma xrS3) 0 ∗ reached ER ((xpeer c : Thread nD τ), .dma xrS4) 0 ∗ reached ER ((xpeer c : Thread nD τ), .dma xrS5) 0 ∗ reached ER ((xpeer c : Thread nD τ), .dma xrS6) 0 ∗ reached ER ((xpeer c : Thread nD τ), .dma xrS7) 0) := rfl
@[sl_rounds] theorem barPayY_even (c : Dev nD) (h : c.val % 2 = 0) : barPayY (F := F) c =
    iprop((∃ f : Buf (Elt F) (hiM.view.loc (ypeer c : Thread nD τ)), hiM.view.loc (ypeer c : Thread nD τ) ↦{fullShare} f)
      ∗ reached ER ((ypeer c : Thread nD τ), .dma yrS) 0) := by unfold barPayY; rw [if_pos h]
@[sl_rounds] theorem barPayY_odd (c : Dev nD) (h : c.val % 2 = 1) : barPayY (F := F) c = iprop(emp) := by
  unfold barPayY; rw [if_neg (by omega)]
@[sl_rounds] theorem ysPay_def (c : Dev nD) : ysPay (F := F) c =
    iprop(∃ f : Buf (Elt F) (hsM.view.loc (c : Thread nD τ)), hsM.view.loc (c : Thread nD τ) ↦{fullShare} f) := rfl
@[sl_rounds] theorem yrPay_def (c : Dev nD) : yrPay m c = (hiM.view.loc (c : Thread nD τ) ↦{fullShare} KVal.hinVal m c : sProp 𝕄) := rfl
@[sl_rounds] theorem xsPay_0 (c : Dev nD) : xsPay (F := F) c 0 =
    iprop(∃ f : Buf (Elt F) (obS0.view.loc (c : Thread nD τ)), obS0.view.loc (c : Thread nD τ) ↦[obS0.view.set]{fullShare} f) := rfl
@[sl_rounds] theorem xrPay_0 (c : Dev nD) : xrPay m c 0 =
    iprop(∃ f : Buf (Elt F) (ibM.view.loc (c : Thread nD τ)), (ibM.access sl0).loc (c : Thread nD τ) ↦[(ibM.access sl0).set]{fullShare} (ibM.access sl0).write (Elt F) f (KVal.yblk16 m (xpeer c) 0) Finset.univ) := rfl
@[sl_rounds] theorem xsPay_1 (c : Dev nD) : xsPay (F := F) c 1 =
    iprop(∃ f : Buf (Elt F) (obS1.view.loc (c : Thread nD τ)), obS1.view.loc (c : Thread nD τ) ↦[obS1.view.set]{fullShare} f) := rfl
@[sl_rounds] theorem xrPay_1 (c : Dev nD) : xrPay m c 1 =
    iprop(∃ f : Buf (Elt F) (ibM.view.loc (c : Thread nD τ)), (ibM.access sl1).loc (c : Thread nD τ) ↦[(ibM.access sl1).set]{fullShare} (ibM.access sl1).write (Elt F) f (KVal.yblk16 m (xpeer c) 1) Finset.univ) := rfl
@[sl_rounds] theorem xsPay_2 (c : Dev nD) : xsPay (F := F) c 2 =
    iprop(∃ f : Buf (Elt F) (obS2.view.loc (c : Thread nD τ)), obS2.view.loc (c : Thread nD τ) ↦[obS2.view.set]{fullShare} f) := rfl
@[sl_rounds] theorem xrPay_2 (c : Dev nD) : xrPay m c 2 =
    iprop(∃ f : Buf (Elt F) (ibM.view.loc (c : Thread nD τ)), (ibM.access sl2).loc (c : Thread nD τ) ↦[(ibM.access sl2).set]{fullShare} (ibM.access sl2).write (Elt F) f (KVal.yblk16 m (xpeer c) 2) Finset.univ) := rfl
@[sl_rounds] theorem xsPay_3 (c : Dev nD) : xsPay (F := F) c 3 =
    iprop(∃ f : Buf (Elt F) (obS3.view.loc (c : Thread nD τ)), obS3.view.loc (c : Thread nD τ) ↦[obS3.view.set]{fullShare} f) := rfl
@[sl_rounds] theorem xrPay_3 (c : Dev nD) : xrPay m c 3 =
    iprop(∃ f : Buf (Elt F) (ibM.view.loc (c : Thread nD τ)), (ibM.access sl3).loc (c : Thread nD τ) ↦[(ibM.access sl3).set]{fullShare} (ibM.access sl3).write (Elt F) f (KVal.yblk16 m (xpeer c) 3) Finset.univ) := rfl
@[sl_rounds] theorem xsPay_4 (c : Dev nD) : xsPay (F := F) c 4 =
    iprop(∃ f : Buf (Elt F) (obS4.view.loc (c : Thread nD τ)), obS4.view.loc (c : Thread nD τ) ↦[obS4.view.set]{fullShare} f) := rfl
@[sl_rounds] theorem xrPay_4 (c : Dev nD) : xrPay m c 4 =
    iprop(∃ f : Buf (Elt F) (ibM.view.loc (c : Thread nD τ)), (ibM.access sl4).loc (c : Thread nD τ) ↦[(ibM.access sl4).set]{fullShare} (ibM.access sl4).write (Elt F) f (KVal.yblk16 m (xpeer c) 4) Finset.univ) := rfl
@[sl_rounds] theorem xsPay_5 (c : Dev nD) : xsPay (F := F) c 5 =
    iprop(∃ f : Buf (Elt F) (obS5.view.loc (c : Thread nD τ)), obS5.view.loc (c : Thread nD τ) ↦[obS5.view.set]{fullShare} f) := rfl
@[sl_rounds] theorem xrPay_5 (c : Dev nD) : xrPay m c 5 =
    iprop(∃ f : Buf (Elt F) (ibM.view.loc (c : Thread nD τ)), (ibM.access sl5).loc (c : Thread nD τ) ↦[(ibM.access sl5).set]{fullShare} (ibM.access sl5).write (Elt F) f (KVal.yblk16 m (xpeer c) 5) Finset.univ) := rfl
@[sl_rounds] theorem xsPay_6 (c : Dev nD) : xsPay (F := F) c 6 =
    iprop(∃ f : Buf (Elt F) (obS6.view.loc (c : Thread nD τ)), obS6.view.loc (c : Thread nD τ) ↦[obS6.view.set]{fullShare} f) := rfl
@[sl_rounds] theorem xrPay_6 (c : Dev nD) : xrPay m c 6 =
    iprop(∃ f : Buf (Elt F) (ibM.view.loc (c : Thread nD τ)), (ibM.access sl6).loc (c : Thread nD τ) ↦[(ibM.access sl6).set]{fullShare} (ibM.access sl6).write (Elt F) f (KVal.yblk16 m (xpeer c) 6) Finset.univ) := rfl
@[sl_rounds] theorem xsPay_7 (c : Dev nD) : xsPay (F := F) c 7 =
    iprop(∃ f : Buf (Elt F) (obS7.view.loc (c : Thread nD τ)), obS7.view.loc (c : Thread nD τ) ↦[obS7.view.set]{fullShare} f) := rfl
@[sl_rounds] theorem xrPay_7 (c : Dev nD) : xrPay m c 7 =
    iprop(∃ f : Buf (Elt F) (ibM.view.loc (c : Thread nD τ)), (ibM.access sl7).loc (c : Thread nD τ) ↦[(ibM.access sl7).set]{fullShare} (ibM.access sl7).write (Elt F) f (KVal.yblk16 m (xpeer c) 7) Finset.univ) := rfl

/-! ## What each device owes at launch; the levels -/

/-- The eight row copies into the x-peer, summed so that the copy of slot 0 peels the last summand. -/
def OX (c : Dev nD) : CellTallies nD τ sig Unit :=
  tallyAt ((xpeer c : Thread nD τ), .dma xrS7) () NX
    + tallyAt ((xpeer c : Thread nD τ), .dma xrS6) () NX
    + tallyAt ((xpeer c : Thread nD τ), .dma xrS5) () NX
    + tallyAt ((xpeer c : Thread nD τ), .dma xrS4) () NX
    + tallyAt ((xpeer c : Thread nD τ), .dma xrS3) () NX
    + tallyAt ((xpeer c : Thread nD τ), .dma xrS2) () NX
    + tallyAt ((xpeer c : Thread nD τ), .dma xrS1) () NX
    + tallyAt ((xpeer c : Thread nD τ), .dma xrS0) () NX
/-- The state copy into the y-peer, owed by a device with my = 0 only. -/
def OY (c : Dev nD) : CellTallies nD τ sig Unit := if c.val % 2 = 0 then tallyAt (yrCell (ypeer c)) () NY else 0
/-- After the entry handshake: the copies. -/
def O₂ (c : Dev nD) : CellTallies nD τ sig Unit := OX c + OY c
/-- After the first signal: the copies and the x-peer's barrier unit. -/
def O₁ (c : Dev nD) : CellTallies nD τ sig Unit := O₂ c + tallyAt (barCell (xpeer c)) () 1
/-- At launch: those and the y-peer's barrier unit, which the first signal pays. -/
def O₀ (c : Dev nD) : CellTallies nD τ sig Unit := O₁ c + tallyAt (barCell (ypeer c)) () 1

theorem O₂_even {c : Dev nD} (h : c.val % 2 = 0) : O₂ c = OX c + tallyAt (yrCell (ypeer c)) () NY := by
  unfold O₂ OY; rw [if_pos h]
theorem O₂_odd {c : Dev nD} (h : c.val % 2 = 1) : O₂ c = OX c := by
  unfold O₂ OY; rw [if_neg (by omega), add_zero]

def L (g : GSem nD τ sig) : Finset Unit := if g.1.2 = .tc then {()} else ∅
/-- Barrier cells at 1, y-receive cells at 2, x-receive cells at 3, everything else (staging, send cells) at 0. -/
def lv (g : GSem nD τ sig) (_ : Unit) : ℕ :=
  match kindOf g.2 with
  | .bar => 1
  | .yr => 2
  | .xr _ => 3
  | .ys => 0
  | .xs _ => 0
  | .other => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [kind_bar]
theorem lv_yr (c : Dev nD) (u : Unit) : lv (yrCell c) u = 2 := by dsimp only [lv]; rw [kind_yr]
theorem lv_xr (c : Dev nD) (s : Fin 8) (u : Unit) : lv (xrCell c s) u = 3 := by dsimp only [lv]; rw [kind_xr]

theorem OX_pos {c : Dev nD} {g : GSem nD τ sig} {u : Unit} (h : 0 < OX c g u) : ∃ s : Fin 8, g = xrCell (xpeer c) s := by
  unfold OX at h
  rcases Pipeline.add_pos_cases h with h | h
  swap
  · exact ⟨0, (Pipeline.tallyAt_pos h).1⟩
  rcases Pipeline.add_pos_cases h with h | h
  swap
  · exact ⟨1, (Pipeline.tallyAt_pos h).1⟩
  rcases Pipeline.add_pos_cases h with h | h
  swap
  · exact ⟨2, (Pipeline.tallyAt_pos h).1⟩
  rcases Pipeline.add_pos_cases h with h | h
  swap
  · exact ⟨3, (Pipeline.tallyAt_pos h).1⟩
  rcases Pipeline.add_pos_cases h with h | h
  swap
  · exact ⟨4, (Pipeline.tallyAt_pos h).1⟩
  rcases Pipeline.add_pos_cases h with h | h
  swap
  · exact ⟨5, (Pipeline.tallyAt_pos h).1⟩
  rcases Pipeline.add_pos_cases h with h | h
  swap
  · exact ⟨6, (Pipeline.tallyAt_pos h).1⟩
  exact ⟨7, (Pipeline.tallyAt_pos h).1⟩

theorem O₂_pos {c : Dev nD} {g : GSem nD τ sig} {u : Unit} (h : 0 < O₂ c g u) :
    (∃ s : Fin 8, g = xrCell (xpeer c) s) ∨ g = yrCell (ypeer c) := by
  unfold O₂ OY at h
  rcases Pipeline.add_pos_cases h with h | h
  · exact Or.inl (OX_pos h)
  · split at h
    · exact Or.inr (Pipeline.tallyAt_pos h).1
    · exact absurd h (Nat.lt_irrefl 0)

theorem O₀_pos {c : Dev nD} {g : GSem nD τ sig} {u : Unit} (h : 0 < O₀ c g u) :
    (∃ s : Fin 8, g = xrCell (xpeer c) s) ∨ g = yrCell (ypeer c) ∨ g = barCell (xpeer c) ∨ g = barCell (ypeer c) := by
  unfold O₀ O₁ at h
  rcases Pipeline.add_pos_cases h with h | h
  · rcases Pipeline.add_pos_cases h with h | h
    · rcases O₂_pos h with h | h
      · exact Or.inl h
      · exact Or.inr (Or.inl h)
    · exact Or.inr (Or.inr (Or.inl (Pipeline.tallyAt_pos h).1))
  · exact Or.inr (Or.inr (Or.inr (Pipeline.tallyAt_pos h).1))

/-- At its barrier wait a device owes copies only: y-receive and x-receive cells, above its barrier cell. -/
theorem mayWait_bar (c : Dev nD) : (levAts L lv : sProp 𝕄) ⊢ MayWait (c : Thread nD τ) (.reg barS) () (O₂ c) :=
  Pipeline.mayWait_of_levAts (by rw [L_tc]; exact Finset.mem_singleton_self _) fun g i hg => by
    rcases O₂_pos hg with ⟨s, rfl⟩ | rfl
    · exact ⟨by rw [L_tc]; exact Finset.mem_singleton_self _, by rw [lv_bar, lv_xr]; decide⟩
    · exact ⟨by rw [L_tc]; exact Finset.mem_singleton_self _, by rw [lv_bar, lv_yr]; decide⟩

/-- At its y-receive wait a device (my = 1) owes the eight row copies: x-receive cells, above its y-receive cell. -/
theorem mayWait_yr (c : Dev nD) : (levAts L lv : sProp 𝕄) ⊢ MayWait (c : Thread nD τ) (.dma yrS) () (OX c) :=
  Pipeline.mayWait_of_levAts (by rw [L_tc]; exact Finset.mem_singleton_self _) fun g i hg => by
    obtain ⟨s, rfl⟩ := OX_pos hg
    exact ⟨by rw [L_tc]; exact Finset.mem_singleton_self _, by rw [lv_yr, lv_xr]; decide⟩

/-! ## The cells by number, and what every device knows of all of them -/

/-- A device's nineteen cells: its barrier cell, its y-send and y-receive cells, its eight x-send and eight x-receive cells. -/
def csem : Fin 19 → SemLoc sig
  | 0 => .reg barS
  | 1 => .dma ysS
  | 2 => .dma yrS
  | 3 => .dma xsS0
  | 4 => .dma xsS1
  | 5 => .dma xsS2
  | 6 => .dma xsS3
  | 7 => .dma xsS4
  | 8 => .dma xsS5
  | 9 => .dma xsS6
  | 10 => .dma xsS7
  | 11 => .dma xrS0
  | 12 => .dma xrS1
  | 13 => .dma xrS2
  | 14 => .dma xrS3
  | 15 => .dma xrS4
  | 16 => .dma xrS5
  | 17 => .dma xrS6
  | 18 => .dma xrS7
  | ⟨n + 19, h⟩ => absurd h (by omega)
abbrev kcell (ck : Dev nD × Fin 19) : GSem nD τ sig := ((ck.1 : Thread nD τ), csem ck.2)
def kxs (s : Fin 8) : Fin 19 := ⟨3 + s.val, by omega⟩
def kxr (s : Fin 8) : Fin 19 := ⟨11 + s.val, by omega⟩
theorem csem_kxs (s : Fin 8) : csem (kxs s) = .dma (xsS s) := by fin_cases s <;> rfl
theorem csem_kxr (s : Fin 8) : csem (kxr s) = .dma (xrS s) := by fin_cases s <;> rfl

/-- Every cell's invariant, under the names `K` the launch allocated them at, and that every cell is at its first round. -/
def records (K : Dev nD × Fin 19 → ℕ) : sProp 𝕄 :=
  iprop((bigSep Finset.univ fun ck : Dev nD × Fin 19 => cellInv ER (sched m) (K ck) (kcell ck))
    ∗ bigSep Finset.univ fun ck : Dev nD × Fin 19 => reached ER (kcell ck) 0)

instance records_persistent (K : Dev nD × Fin 19 → ℕ) : BI.Persistent (records m K) := by unfold records; infer_instance

theorem inv_at (K : Dev nD × Fin 19 → ℕ) (ck : Dev nD × Fin 19) : records m K ⊢ cellInv ER (sched m) (K ck) (kcell ck) := by
  unfold records; iintro ⟨#HI, -⟩
  iapply (show (bigSep Finset.univ fun ck : Dev nD × Fin 19 => (cellInv ER (sched m) (K ck) (kcell ck) : sProp 𝕄)) ⊢ cellInv ER (sched m) (K ck) (kcell ck) from bigSep_elim (Finset.mem_univ ck))
  iexact HI
theorem reached_at (K : Dev nD × Fin 19 → ℕ) (ck : Dev nD × Fin 19) : records m K ⊢ reached ER (kcell ck) 0 := by
  unfold records; iintro ⟨-, #HR⟩
  iapply (show (bigSep Finset.univ fun ck : Dev nD × Fin 19 => (reached ER (kcell ck) 0 : sProp 𝕄)) ⊢ reached ER (kcell ck) 0 from bigSep_elim (Finset.mem_univ ck))
  iexact HR

theorem inv_bar (K : Dev nD × Fin 19 → ℕ) (c : Dev nD) : records m K ⊢ cellInv ER (sched m) (K (c, 0)) (barCell c) := inv_at m K (c, 0)
theorem inv_ys (K : Dev nD × Fin 19 → ℕ) (c : Dev nD) : records m K ⊢ cellInv ER (sched m) (K (c, 1)) (ysCell c) := inv_at m K (c, 1)
theorem inv_yr (K : Dev nD × Fin 19 → ℕ) (c : Dev nD) : records m K ⊢ cellInv ER (sched m) (K (c, 2)) (yrCell c) := inv_at m K (c, 2)
theorem inv_xs (K : Dev nD × Fin 19 → ℕ) (c : Dev nD) (s : Fin 8) : records m K ⊢ cellInv ER (sched m) (K (c, kxs s)) (xsCell c s) := by
  have h := inv_at m K (c, kxs s); rwa [show kcell (c, kxs s) = xsCell c s from congrArg (Prod.mk _) (csem_kxs s)] at h
theorem inv_xr (K : Dev nD × Fin 19 → ℕ) (c : Dev nD) (s : Fin 8) : records m K ⊢ cellInv ER (sched m) (K (c, kxr s)) (xrCell c s) := by
  have h := inv_at m K (c, kxr s); rwa [show kcell (c, kxr s) = xrCell c s from congrArg (Prod.mk _) (csem_kxr s)] at h
theorem reached_bar (K : Dev nD × Fin 19 → ℕ) (c : Dev nD) : records m K ⊢ reached ER (barCell c) 0 := reached_at m K (c, 0)
theorem reached_ys (K : Dev nD × Fin 19 → ℕ) (c : Dev nD) : records m K ⊢ reached ER (ysCell c) 0 := reached_at m K (c, 1)
theorem reached_yr (K : Dev nD × Fin 19 → ℕ) (c : Dev nD) : records m K ⊢ reached ER (yrCell c) 0 := reached_at m K (c, 2)
theorem reached_xs (K : Dev nD × Fin 19 → ℕ) (c : Dev nD) (s : Fin 8) : records m K ⊢ reached ER (xsCell c s) 0 := by
  have h := reached_at m K (c, kxs s); rwa [show kcell (c, kxs s) = xsCell c s from congrArg (Prod.mk _) (csem_kxs s)] at h
theorem reached_xr (K : Dev nD × Fin 19 → ℕ) (c : Dev nD) (s : Fin 8) : records m K ⊢ reached ER (xrCell c s) 0 := by
  have h := reached_at m K (c, kxr s); rwa [show kcell (c, kxr s) = xrCell c s from congrArg (Prod.mk _) (csem_kxr s)] at h

/-! ## What one device's body starts from and ends with -/

/-- The device's position at the first round of each of its nineteen cells, nothing consumed. -/
def linear (c : Dev nD) : sProp 𝕄 :=
  iprop(atPos ER ((c : Thread nD τ), .reg barS) 0 ∅ 0
    ∗ atPos ER ((c : Thread nD τ), .dma ysS) 0 ∅ 0
    ∗ atPos ER ((c : Thread nD τ), .dma yrS) 0 ∅ 0
    ∗ atPos ER ((c : Thread nD τ), .dma xsS0) 0 ∅ 0
    ∗ atPos ER ((c : Thread nD τ), .dma xsS1) 0 ∅ 0
    ∗ atPos ER ((c : Thread nD τ), .dma xsS2) 0 ∅ 0
    ∗ atPos ER ((c : Thread nD τ), .dma xsS3) 0 ∅ 0
    ∗ atPos ER ((c : Thread nD τ), .dma xsS4) 0 ∅ 0
    ∗ atPos ER ((c : Thread nD τ), .dma xsS5) 0 ∅ 0
    ∗ atPos ER ((c : Thread nD τ), .dma xsS6) 0 ∅ 0
    ∗ atPos ER ((c : Thread nD τ), .dma xsS7) 0 ∅ 0
    ∗ atPos ER ((c : Thread nD τ), .dma xrS0) 0 ∅ 0
    ∗ atPos ER ((c : Thread nD τ), .dma xrS1) 0 ∅ 0
    ∗ atPos ER ((c : Thread nD τ), .dma xrS2) 0 ∅ 0
    ∗ atPos ER ((c : Thread nD τ), .dma xrS3) 0 ∅ 0
    ∗ atPos ER ((c : Thread nD τ), .dma xrS4) 0 ∅ 0
    ∗ atPos ER ((c : Thread nD τ), .dma xrS5) 0 ∅ 0
    ∗ atPos ER ((c : Thread nD τ), .dma xrS6) 0 ∅ 0
    ∗ atPos ER ((c : Thread nD τ), .dma xrS7) 0 ∅ 0)

/-- The tokens of the duties the device pays: the y-peer's barrier duty `false`, the x-peer's barrier duty `true`,
    the state copy's two (its own send duty, the y-peer's receive duty; used on a device with my = 0 only), and
    per slot its own send duty and the x-peer's receive duty. -/
def payToks (c : Dev nD) : sProp 𝕄 :=
  iprop(dutyTok ER (barCell (ypeer c)) 0 false ∗ dutyTok ER (barCell (xpeer c)) 0 true
    ∗ dutyTok ER (ysCell c) 0 false ∗ dutyTok ER (yrCell (ypeer c)) 0 false
    ∗ dutyTok ER ((c : Thread nD τ), .dma xsS0) 0 false ∗ dutyTok ER ((c : Thread nD τ), .dma xsS1) 0 false ∗ dutyTok ER ((c : Thread nD τ), .dma xsS2) 0 false ∗ dutyTok ER ((c : Thread nD τ), .dma xsS3) 0 false ∗ dutyTok ER ((c : Thread nD τ), .dma xsS4) 0 false ∗ dutyTok ER ((c : Thread nD τ), .dma xsS5) 0 false ∗ dutyTok ER ((c : Thread nD τ), .dma xsS6) 0 false ∗ dutyTok ER ((c : Thread nD τ), .dma xsS7) 0 false
    ∗ dutyTok ER ((xpeer c : Thread nD τ), .dma xrS0) 0 false ∗ dutyTok ER ((xpeer c : Thread nD τ), .dma xrS1) 0 false ∗ dutyTok ER ((xpeer c : Thread nD τ), .dma xrS2) 0 false ∗ dutyTok ER ((xpeer c : Thread nD τ), .dma xrS3) 0 false ∗ dutyTok ER ((xpeer c : Thread nD τ), .dma xrS4) 0 false ∗ dutyTok ER ((xpeer c : Thread nD τ), .dma xrS5) 0 false ∗ dutyTok ER ((xpeer c : Thread nD τ), .dma xrS6) 0 false ∗ dutyTok ER ((xpeer c : Thread nD τ), .dma xrS7) 0 false)

/-- The credit the device waits with: its barrier's two units, its y-receive cell's credit when my = 1, and each
    x-receive cell's credit. (A send cell's credit comes from the copy's own departure.) -/
def creds (c : Dev nD) : sProp 𝕄 :=
  iprop(cred (tallyAt (barCell c) () 2)
    ∗ (if c.val % 2 = 1 then cred (tallyAt (yrCell c) () NY) else iprop(emp))
    ∗ cred (tallyAt ((c : Thread nD τ), .dma xrS0) () NX) ∗ cred (tallyAt ((c : Thread nD τ), .dma xrS1) () NX) ∗ cred (tallyAt ((c : Thread nD τ), .dma xrS2) () NX) ∗ cred (tallyAt ((c : Thread nD τ), .dma xrS3) () NX) ∗ cred (tallyAt ((c : Thread nD τ), .dma xrS4) () NX) ∗ cred (tallyAt ((c : Thread nD τ), .dma xrS5) () NX) ∗ cred (tallyAt ((c : Thread nD τ), .dma xrS6) () NX) ∗ cred (tallyAt ((c : Thread nD τ), .dma xrS7) () NX))

/-- The four argument blocks as staged, each whole at the launch memory's contents. -/
def stagedIn (c : Dev nD) : sProp 𝕄 :=
  iprop((x0M.view.loc (c : Thread nD τ) ↦{fullShare} (KVal.argX m c : Buf (Elt F) (x0M.view.loc (c : Thread nD τ))))
    ∗ (x1M.view.loc (c : Thread nD τ) ↦{fullShare} (KVal.argA m c : Buf (Elt F) (x1M.view.loc (c : Thread nD τ))))
    ∗ (x2M.view.loc (c : Thread nD τ) ↦{fullShare} (KVal.argB m c : Buf (Elt F) (x2M.view.loc (c : Thread nD τ))))
    ∗ (x3M.view.loc (c : Thread nD τ) ↦{fullShare} (KVal.argC m c : Buf (Elt F) (x3M.view.loc (c : Thread nD τ)))))

/-- The five scratch buffers, each whole at some contents. -/
def scratch (c : Dev nD) : sProp 𝕄 :=
  iprop((∃ f : Buf (Elt F) (h0M.view.loc (c : Thread nD τ)), h0M.view.loc (c : Thread nD τ) ↦{fullShare} f)
    ∗ (∃ f : Buf (Elt F) (hsM.view.loc (c : Thread nD τ)), hsM.view.loc (c : Thread nD τ) ↦{fullShare} f)
    ∗ (∃ f : Buf (Elt F) (hiM.view.loc (c : Thread nD τ)), hiM.view.loc (c : Thread nD τ) ↦{fullShare} f)
    ∗ (∃ f : Buf (Elt F) (obM.view.loc (c : Thread nD τ)), obM.view.loc (c : Thread nD τ) ↦{fullShare} f)
    ∗ (∃ f : Buf (Elt F) (ibM.view.loc (c : Thread nD τ)), ibM.view.loc (c : Thread nD τ) ↦{fullShare} f))

/-- The device's eighteen own (scoped) semaphores at zero. -/
def ownZero (c : Dev nD) : sProp 𝕄 :=
  iprop(semVal ((c : Thread nD τ), .dma ysS) 0
    ∗ semVal ((c : Thread nD τ), .dma yrS) 0
    ∗ semVal ((c : Thread nD τ), .dma xsS0) 0
    ∗ semVal ((c : Thread nD τ), .dma xsS1) 0
    ∗ semVal ((c : Thread nD τ), .dma xsS2) 0
    ∗ semVal ((c : Thread nD τ), .dma xsS3) 0
    ∗ semVal ((c : Thread nD τ), .dma xsS4) 0
    ∗ semVal ((c : Thread nD τ), .dma xsS5) 0
    ∗ semVal ((c : Thread nD τ), .dma xsS6) 0
    ∗ semVal ((c : Thread nD τ), .dma xsS7) 0
    ∗ semVal ((c : Thread nD τ), .dma xrS0) 0
    ∗ semVal ((c : Thread nD τ), .dma xrS1) 0
    ∗ semVal ((c : Thread nD τ), .dma xrS2) 0
    ∗ semVal ((c : Thread nD τ), .dma xrS3) 0
    ∗ semVal ((c : Thread nD τ), .dma xrS4) 0
    ∗ semVal ((c : Thread nD τ), .dma xrS5) 0
    ∗ semVal ((c : Thread nD τ), .dma xrS6) 0
    ∗ semVal ((c : Thread nD τ), .dma xrS7) 0)

/-- What device `c`'s body starts from: every cell's invariant and first round; its positions; the tokens it pays with;
    the credit it waits with; the levels; what it owes; the staged arguments, the output staging buffer at any contents,
    the scratch buffers at any contents. -/
def bodyPre (K : Dev nD × Fin 19 → ℕ) (c : Dev nD) : sProp 𝕄 :=
  iprop(records m K ∗ linear c ∗ payToks c ∗ creds c ∗ levAts L lv
    ∗ (∃ W : Waits sig Unit, owes (c : Thread nD τ) (O₀ c) W)
    ∗ stagedIn m c
    ∗ (∃ f : Buf (Elt F) (x4M.view.loc (c : Thread nD τ)), x4M.view.loc (c : Thread nD τ) ↦{fullShare} f)
    ∗ scratch c)

/-- What it ends with: nothing owed; the staged arguments as they were; the output staging buffer at the named result;
    the scratch buffers at some contents; its own semaphores at zero, their cells closed. -/
def bodyPost (c : Dev nD) : sProp 𝕄 :=
  iprop((∃ W : Waits sig Unit, owes (c : Thread nD τ) 0 W)
    ∗ stagedIn m c
    ∗ (x4M.view.loc (c : Thread nD τ) ↦{fullShare} KVal.outAt m c)
    ∗ scratch c
    ∗ ownZero c)

/-- The body lemma, as the launch takes it: on every device, under any names, the kernel's body at the one grid point
    runs from `bodyPre` to `bodyPost`. -/
def SoundBody : Prop :=
  ∀ (K : Dev nD × Fin 19 → ℕ) (c : Dev nD),
    bodyPre m K c ⊢ wp frame (wpE (defs₀ (F := F)) 𝒱₀ c none) Set.univ (Gen.bodyAt0 (F := F) Gen.t0_0) (fun _ => bodyPost m c)

/-
  THE BODY LEMMA this file's launch takes as a hypothesis (`SoundBody m` above, unfolded):

    theorem sound_body (K : Dev nD × Fin 19 → ℕ) (c : Dev nD) :
        KProto.bodyPre m K c ⊢ wp frame (wpE (defs₀ (F := F)) KProto.𝒱₀ c none) Set.univ (Gen.bodyAt0 (F := F) Gen.t0_0)
          (fun _ => KProto.bodyPost m c)
-/

end Cert.Kernel.KProto

end
-- ==== Proof.KDatBits.lean ====
/-
  The proof data of the kernel's one grid point on a device — what each window's staging buffer holds after the body,
  the invariant before and after the point, what the device owes — and the body obligation from the body lemma.
-/
import proofs.«900482_g7700000000000483_dist_ssm_v7x_xy2x2_y_b4_s256_d256_n16_f32_1_alg».proof.Proof.KProtoBits
import Idealize.ShloMosaic.Lib.Pipeline.Launch
import Idealize.ShloMosaic.Lib.Pipeline.Kit
import Idealize.ShloMosaic.Lib.Tactic

noncomputable section

namespace Cert.Kernel.KDat

open Cert.Kernel Cert.Kernel.Gen Cert.Kernel.KProto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.KVal (ypeer xpeer ypeer_ypeer xpeer_xpeer)

variable {F : FTy → Type} [FloatOps F]

local notation "𝕄" => MT nD τ sig Unit (Elt F) ℕ UU ℕ

variable (m : (ℓ : Loc nD τ sig) → Buf (Elt F) ℓ)

/-! ## The pipeline's proof data -/

/-- Before the point: the ghost state at some names, the launch credit, the levels, the scratch buffers. -/
def Φ₀ (c : Dev nD) : sProp 𝕄 :=
  iprop((∃ K : Dev nD × Fin 19 → ℕ, iprop(records m K ∗ linear c ∗ payToks c)) ∗ creds c ∗ levAts L lv ∗ scratch c)
/-- After it: the scratch buffers and the device's own semaphores at zero. -/
def Φ₁ (c : Dev nD) : sProp 𝕄 := iprop(scratch c ∗ ownZero c)

def dats (_ : Fin 1) (c : Dev nD) : Dat τ (Elt F) Unit ℕ UU ℕ cfg0 c where
  A w := m ((cfg0.win w).arr.view.loc (c : Thread nD τ))
  after w _ := match w with
    | ⟨0, _⟩ => KVal.argX m c
    | ⟨1, _⟩ => KVal.argA m c
    | ⟨2, _⟩ => KVal.argB m c
    | ⟨3, _⟩ => KVal.argC m c
    | ⟨4, _⟩ => KVal.outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before (0 : Fin 5) Gen.t0_0 d = KVal.argX m c := by
  unfold Dat.before; rw [if_pos (Gen.fetch0_0 _)]
  show (dats m 0 c).blockOf _ Gen.t0_0 = _
  unfold Dat.blockOf
  exact Memref.read_access_unit_zero (Elt F) main_arg0 (funext fun a => Nat.zero_mul _) _ _
theorem before_1 (c : Dev nD) (d) : (dats m 0 c).before (1 : Fin 5) Gen.t0_0 d = KVal.argA m c := by
  unfold Dat.before; rw [if_pos (Gen.fetch0_1 _)]
  show (dats m 0 c).blockOf _ Gen.t0_0 = _
  unfold Dat.blockOf
  exact Memref.read_access_unit_zero (Elt F) main_arg1 (funext fun a => Nat.zero_mul _) _ _
theorem before_2 (c : Dev nD) (d) : (dats m 0 c).before (2 : Fin 5) Gen.t0_0 d = KVal.argB m c := by
  unfold Dat.before; rw [if_pos (Gen.fetch0_2 _)]
  show (dats m 0 c).blockOf _ Gen.t0_0 = _
  unfold Dat.blockOf
  exact Memref.read_access_unit_zero (Elt F) main_arg2 (funext fun a => Nat.zero_mul _) _ _
theorem before_3 (c : Dev nD) (d) : (dats m 0 c).before (3 : Fin 5) Gen.t0_0 d = KVal.argC m c := by
  unfold Dat.before; rw [if_pos (Gen.fetch0_3 _)]
  show (dats m 0 c).blockOf _ Gen.t0_0 = _
  unfold Dat.blockOf
  exact Memref.read_access_unit_zero (Elt F) main_arg3 (funext fun a => Nat.zero_mul _) _ _
/-! ## The body obligation -/

/-- What the body leaves is what the pipeline takes back at the next point. -/
theorem post_entails (c : Dev nD) :
    bodyPost m c ⊢ iprop(Φ₁ c ∗ (dats m 0 c).owesAt () Gen.t0_0.succ
      ∗ stg c cc0_stg0_0 ((dats m 0 c).after 0 Gen.t0_0) ∗ stg c cc0_stg1_0 ((dats m 0 c).after 1 Gen.t0_0)
      ∗ stg c cc0_stg2_0 ((dats m 0 c).after 2 Gen.t0_0) ∗ stg c cc0_stg3_0 ((dats m 0 c).after 3 Gen.t0_0)
      ∗ stg c cc0_stg4_0 ((dats m 0 c).after 4 Gen.t0_0)) := by
  unfold bodyPost Φ₁ stagedIn Dat.owesAt Pipeline.owesWithin
  rw [show (dats m 0 c).owed Gen.t0_0.succ = 0 from rfl]
  iintro ⟨⟨%W, HO⟩, ⟨H0, H1, H2, H3⟩, H4, Hscr, Hz⟩
  isplitl [Hscr Hz]
  · isplitl [Hscr] <;> iassumption
  isplitl [HO]
  · iexists W
    isplitr; · ipureintro; exact fun _ _ => Or.inl trivial
    iexact HO
  isplitl [H0]
  · iexists _; isplitr; · (ipureintro; dsimp only [dats])
    iexact H0
  isplitl [H1]
  · iexists _; isplitr; · (ipureintro; dsimp only [dats])
    iexact H1
  isplitl [H2]
  · iexists _; isplitr; · (ipureintro; dsimp only [dats])
    iexact H2
  isplitl [H3]
  · iexists _; isplitr; · (ipureintro; dsimp only [dats])
    iexact H3
  iexists _; isplitr; · (ipureintro; dsimp only [dats])
  iexact H4

/-- The library's body obligation on device `c`, from the body lemma. -/
theorem body_obligation (hbody : SoundBody m) (c : Dev nD) : BodyObligation (dats (F := F) m 0 c) (defs₀ (F := F)) 𝒱₀ () Set.univ := fun t => by
  rw [Gen.fin_N0 t]
  rw [Gen.bigSep_W0, Gen.bigSep_W0]
  simp only [owns_whole_eq]
  show iprop(Φ₀ m c ∗ (dats m 0 c).owesAt () Gen.t0_0.castSucc
      ∗ (∃ d, stg c cc0_stg0_0 ((dats m 0 c).before 0 Gen.t0_0 d)) ∗ (∃ d, stg c cc0_stg1_0 ((dats m 0 c).before 1 Gen.t0_0 d))
      ∗ (∃ d, stg c cc0_stg2_0 ((dats m 0 c).before 2 Gen.t0_0 d)) ∗ (∃ d, stg c cc0_stg3_0 ((dats m 0 c).before 3 Gen.t0_0 d))
      ∗ (∃ d, stg c cc0_stg4_0 ((dats m 0 c).before 4 Gen.t0_0 d)))
    ⊢ wp frame (wpE (defs₀ (F := F)) 𝒱₀ c none) Set.univ (Gen.bodyAt0 (F := F) Gen.t0_0) (fun _ =>
      iprop(Φ₁ c ∗ (dats m 0 c).owesAt () Gen.t0_0.succ
        ∗ stg c cc0_stg0_0 ((dats m 0 c).after 0 Gen.t0_0) ∗ stg c cc0_stg1_0 ((dats m 0 c).after 1 Gen.t0_0)
        ∗ stg c cc0_stg2_0 ((dats m 0 c).after 2 Gen.t0_0) ∗ stg c cc0_stg3_0 ((dats m 0 c).after 3 Gen.t0_0)
        ∗ stg c cc0_stg4_0 ((dats m 0 c).after 4 Gen.t0_0)))
  unfold Φ₀ Dat.owesAt Pipeline.owesWithin
  rw [show (dats m 0 c).owed Gen.t0_0.castSucc = O₀ c from rfl]
  iintro ⟨⟨⟨%K, Hrec, Hlin, Htok⟩, Hcr, Hlev, Hscr⟩, ⟨%W, %hW, HO⟩, ⟨%d0, %g0, %hg0, H0⟩, ⟨%d1, %g1, %hg1, H1⟩, ⟨%d2, %g2, %hg2, H2⟩, ⟨%d3, %g3, %hg3, H3⟩, ⟨%d4, %g4, %hg4, H4⟩⟩
  rw [before_0] at hg0; rw [before_1] at hg1; rw [before_2] at hg2; rw [before_3] at hg3
  subst hg0 hg1 hg2 hg3
  iapply ((hbody K c).trans (wp_mono _ _ _ fun _ => post_entails m c))
  unfold bodyPre stagedIn
  isplitl [Hrec]; · iexact Hrec
  isplitl [Hlin]; · iexact Hlin
  isplitl [Htok]; · iexact Htok
  isplitl [Hcr]; · iexact Hcr
  isplitl [Hlev]; · iexact Hlev
  isplitl [HO]; · iexists W; iexact HO
  isplitl [H0 H1 H2 H3]
  · isplitl [H0]; · iexact H0
    isplitl [H1]; · iexact H1
    isplitl [H2]; · iexact H2
    iexact H3
  isplitl [H4]; · iexists g4; iexact H4
  iexact Hscr

end Cert.Kernel.KDat

end
-- ==== Proof.KCredBits.lean ====
/-
  The credit the launch deals a device, under the dues the devices owe at launch: the two barrier units owed to a
  device's barrier cell by its two peers join into that cell's credit of 2; the eight row copies owed to its eight
  x-receive cells by its x-peer give those cells' credits; and the state copy owed by a device with my = 0 to its
  y-peer's y-receive cell gives a device with my = 1 that cell's credit. Each peer map is an involution of the devices,
  so the dues summed over the issuers are each device's own waits' credit.
-/
import proofs.«900482_g7700000000000483_dist_ssm_v7x_xy2x2_y_b4_s256_d256_n16_f32_1_alg».proof.Proof.KProtoBits
import Idealize.ShloMosaic.Lib.Pipeline.Launch
import Idealize.ShloMosaic.Lib.Pipeline.Kit
import Idealize.ShloMosaic.Lib.Tactic

noncomputable section

namespace Cert.Kernel.KCred

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.KVal (ypeer xpeer ypeer_ypeer xpeer_xpeer)
open Cert.Kernel.KProto

variable {F : FTy → Type} [FloatOps F]

local notation "𝕄" => MT nD τ sig Unit (Elt F) ℕ UU ℕ

/-- Every device owing n units on semaphore sm of its x-peer, the launch deals a device the credit of n on its own sm. -/
theorem lc_x (sm : SemLoc sig) (n : ℕ) (c : Dev nD) :
    (Pipeline.launchCred (fun d => tallyAt ((xpeer d : Thread nD τ), sm) () n) c : sProp 𝕄)
      ⊢ cred (tallyAt ((c : Thread nD τ), sm) () n) :=
  Pipeline.launchCred_tallyAt sm xpeer xpeer xpeer_xpeer xpeer_xpeer () n c

/-- The same for the y-peer. -/
theorem lc_y (sm : SemLoc sig) (n : ℕ) (c : Dev nD) :
    (Pipeline.launchCred (fun d => tallyAt ((ypeer d : Thread nD τ), sm) () n) c : sProp 𝕄)
      ⊢ cred (tallyAt ((c : Thread nD τ), sm) () n) :=
  Pipeline.launchCred_tallyAt sm ypeer ypeer ypeer_ypeer ypeer_ypeer () n c

/-- The two peers' barrier units join into the barrier cell's credit of 2. -/
theorem lc_bar (c : Dev nD) :
    (iprop(Pipeline.launchCred (fun d => tallyAt (barCell (xpeer d)) () 1) c
      ∗ Pipeline.launchCred (fun d => tallyAt (barCell (ypeer d)) () 1) c) : sProp 𝕄)
      ⊢ cred (tallyAt (barCell c) () 2) := by
  refine (BIClass.sep_mono (lc_x (F := F) (.reg barS) 1 c) (lc_y (F := F) (.reg barS) 1 c)).trans ?_
  refine ((cred_add _ _).2).trans (Entails.of_eq ?_)
  rw [tallyAt_add]

/-- What a device's y-receive cell is owed, as the cell's owner sees it: the state copy, when my = 1. -/
def TY (c : Dev nD) : CellTallies nD τ sig Unit := if c.val % 2 = 1 then tallyAt (yrCell c) () NY else 0

/-- What a device owes its y-peer's y-receive cell is what the peer's cell is owed. -/
theorem OY_eq (d : Dev nD) : OY d = TY (ypeer d) := by
  unfold OY TY
  rw [KVal.ypeer_mod]
  by_cases h : d.val % 2 = 0
  · rw [if_pos h, if_pos (by omega)]
  · rw [if_neg h, if_neg (by omega)]

/-- Summed over the devices, the state copies owed are the state copies the y-receive cells are owed. -/
theorem sum_OY : (∑ d, OY d) = ∑ d, TY d :=
  Fintype.sum_equiv (Function.Involutive.toPerm ypeer ypeer_ypeer) _ _ (fun d => OY_eq d)

/-- A one-cell tally is nonzero only at its cell. -/
theorem tallyAt_ne_zero {g0 g : GSem nD τ sig} {k : ℕ}
    (h : (tallyAt g0 () k : CellTallies nD τ sig Unit) g ≠ 0) : g = g0 := by
  by_contra hne
  exact h (by unfold tallyAt tallyOn; exact Pi.single_eq_of_ne hne _)

/-- The launch deals a device with my = 1 its y-receive cell's credit for the state copy, and a device with my = 0
    nothing for it. -/
theorem lc_OY (c : Dev nD) :
    (Pipeline.launchCred OY c : sProp 𝕄) ⊢ (if c.val % 2 = 1 then cred (tallyAt (yrCell c) () NY) else iprop(emp)) := by
  have hT : ∀ d g, TY d g ≠ 0 → g.1 = (d : Thread nD τ) := by
    intro d g hg
    unfold TY at hg
    split at hg
    · rw [tallyAt_ne_zero hg]
    · exact absurd rfl hg
  rw [Pipeline.launchCred_of_sum OY TY sum_OY hT c]
  unfold TY
  split
  · exact .rfl
  · rw [cred_zero]

/-- The launch deals each device the credit it waits with. -/
theorem creds_of_launch (c : Dev nD) : (Pipeline.launchCred O₀ c : sProp 𝕄) ⊢ creds c := by
  rw [show (O₀ : Dev nD → CellTallies nD τ sig Unit) = fun d => O₁ d + tallyAt (barCell (ypeer d)) () 1 from rfl,
    Pipeline.launchCred_add,
    show (O₁ : Dev nD → CellTallies nD τ sig Unit) = fun d => O₂ d + tallyAt (barCell (xpeer d)) () 1 from rfl,
    Pipeline.launchCred_add,
    show (O₂ : Dev nD → CellTallies nD τ sig Unit) = fun d => OX d + OY d from rfl,
    Pipeline.launchCred_add]
  unfold OX
  rw [Pipeline.launchCred_add, Pipeline.launchCred_add, Pipeline.launchCred_add, Pipeline.launchCred_add,
    Pipeline.launchCred_add, Pipeline.launchCred_add, Pipeline.launchCred_add]
  unfold creds
  iintro ⟨⟨⟨⟨⟨⟨⟨⟨⟨⟨H7, H6⟩, H5⟩, H4⟩, H3⟩, H2⟩, H1⟩, H0⟩, HY⟩, Hbx⟩, Hby⟩
  isplitl [Hbx Hby]
  · iapply (lc_bar (F := F) c)
    isplitl [Hbx]
    · iexact Hbx
    · iexact Hby
  isplitl [HY]
  · iapply (lc_OY (F := F) c)
    iexact HY
  isplitl [H0]
  · iapply (lc_x (F := F) (.dma xrS0) NX c)
    iexact H0
  isplitl [H1]
  · iapply (lc_x (F := F) (.dma xrS1) NX c)
    iexact H1
  isplitl [H2]
  · iapply (lc_x (F := F) (.dma xrS2) NX c)
    iexact H2
  isplitl [H3]
  · iapply (lc_x (F := F) (.dma xrS3) NX c)
    iexact H3
  isplitl [H4]
  · iapply (lc_x (F := F) (.dma xrS4) NX c)
    iexact H4
  isplitl [H5]
  · iapply (lc_x (F := F) (.dma xrS5) NX c)
    iexact H5
  isplitl [H6]
  · iapply (lc_x (F := F) (.dma xrS6) NX c)
    iexact H6
  · iapply (lc_x (F := F) (.dma xrS7) NX c)
    iexact H7

end Cert.Kernel.KCred

end
-- ==== Proof.KArraysBits.lean ====
/-
  The arrays when the kernel's one grid point is done: the four input arrays hold what the launch memory held (an input
  window is never written back), and the output array holds what the body left in the output staging buffer, the
  write-back writing the whole array through the block at zero offsets.
-/
import proofs.«900482_g7700000000000483_dist_ssm_v7x_xy2x2_y_b4_s256_d256_n16_f32_1_alg».proof.Proof.KDatBits

noncomputable section

namespace Cert.Kernel.KArrays

open Cert.Kernel Cert.Kernel.Gen Cert.Kernel.KProto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.KVal (ypeer xpeer ypeer_ypeer xpeer_xpeer)
open Cert.Kernel.KDat

variable {F : FTy → Type} [FloatOps F]

variable (m : (ℓ : Loc nD τ sig) → Buf (Elt F) ℓ)

/-- The first input array is never written: it holds the launch memory's contents. -/
theorem final_in0 (c : Dev nD) : (dats m 0 c).arrAt (0 : Fin 5) cfg0.N = m ((c.tc : Thread nD τ).loc main_arg0) := by
  rw [(dats m 0 c).arrAt_in (0 : Fin 5) rfl _]
  rfl
/-- The second input array likewise. -/
theorem final_in1 (c : Dev nD) : (dats m 0 c).arrAt (1 : Fin 5) cfg0.N = m ((c.tc : Thread nD τ).loc main_arg1) := by
  rw [(dats m 0 c).arrAt_in (1 : Fin 5) rfl _]
  rfl
/-- The third input array likewise. -/
theorem final_in2 (c : Dev nD) : (dats m 0 c).arrAt (2 : Fin 5) cfg0.N = m ((c.tc : Thread nD τ).loc main_arg2) := by
  rw [(dats m 0 c).arrAt_in (2 : Fin 5) rfl _]
  rfl
/-- The fourth input array likewise. -/
theorem final_in3 (c : Dev nD) : (dats m 0 c).arrAt (3 : Fin 5) cfg0.N = m ((c.tc : Thread nD τ).loc main_arg3) := by
  rw [(dats m 0 c).arrAt_in (3 : Fin 5) rfl _]
  rfl

/-- The output array after the one write-back holds what the body left in the output staging buffer. -/
theorem final_out (c : Dev nD) : (dats m 0 c).arrAt (4 : Fin 5) cfg0.N = KVal.outAtRes m c := by
  have hN : cfg0.N = 1 := Gen.N_0
  refine (congrArg ((dats m 0 c).arrAt (4 : Fin 5)) hN).trans ?_
  show (dats m 0 c).arrAt (4 : Fin 5) ((Gen.t0_0 : Fin cfg0.N).val + 1) = _
  rw [Dat.arrAt_succ, if_pos (Gen.flush0_4 _)]
  refine (Memref.write_access_unit_zero_univ (Elt F) main_v1 (funext fun a => Nat.zero_mul _) _ _ _).trans ?_
  show (cfg0.win (4 : Fin 5)).cut (cfg0.grid.coords Gen.t0_0) ((dats m 0 c).after (4 : Fin 5) Gen.t0_0) = _
  dsimp only [dats]
  rfl

end Cert.Kernel.KArrays

end
-- ==== Proof.KLaunchBits.lean ====
/-
  The launch of the kernel on the four devices: the ghost state dealt at launch (every cell's invariant allocated in
  one step, the duty tokens dealt to the devices that pay them, the launch credit to the devices that wait), the
  levels of the pipeline's own waits, and the run of the program: every weakly fair execution terminates with each
  windowed array at what the proof data names.
-/
import proofs.«900482_g7700000000000483_dist_ssm_v7x_xy2x2_y_b4_s256_d256_n16_f32_1_alg».proof.Proof.KDatBits
import proofs.«900482_g7700000000000483_dist_ssm_v7x_xy2x2_y_b4_s256_d256_n16_f32_1_alg».proof.Proof.KCredBits
import proofs.«900482_g7700000000000483_dist_ssm_v7x_xy2x2_y_b4_s256_d256_n16_f32_1_alg».proof.Proof.KArraysBits
import Idealize.ShloMosaic.Lib.Pipeline.Launch
import Idealize.ShloMosaic.Lib.Pipeline.Kit
import Idealize.ShloMosaic.Lib.Tactic

noncomputable section

namespace Cert.Kernel.KLaunch

open Cert.Kernel Cert.Kernel.Gen Cert.Kernel.KProto Cert.Kernel.KDat
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.KVal (ypeer xpeer ypeer_ypeer xpeer_xpeer)

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost state -/

/-- The device's eighteen own (scoped) semaphores, as the launch theorem indexes them. -/
def osem : Fin 18 → SemLoc sig
  | 0 => .dma ysS
  | 1 => .dma yrS
  | 2 => .dma xsS0
  | 3 => .dma xsS1
  | 4 => .dma xsS2
  | 5 => .dma xsS3
  | 6 => .dma xsS4
  | 7 => .dma xsS5
  | 8 => .dma xsS6
  | 9 => .dma xsS7
  | 10 => .dma xrS0
  | 11 => .dma xrS1
  | 12 => .dma xrS2
  | 13 => .dma xrS3
  | 14 => .dma xrS4
  | 15 => .dma xrS5
  | 16 => .dma xrS6
  | 17 => .dma xrS7
  | ⟨n + 18, h⟩ => absurd h (by omega)

theorem ownSemFacts : Pipeline.OwnSemFacts cfg0.spec osem := by decide

theorem share_eq (c : Dev nD) (w : Fin cfg0.W) : (dats m 0 c).share w = fullShare := by unfold Dat.share; split <;> rfl

theorem csem_injective : Function.Injective (csem : Fin 19 → SemLoc sig) := by decide
theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duties of a device's own cells, numbered: the barrier's `false` and `true`, then the one duty of each other cell. -/
def tk (j : Fin 20) : Fin 19 × Bool :=
  if j.val = 0 then (0, false) else if j.val = 1 then (0, true) else (⟨j.val - 1, by omega⟩, false)
theorem tk_injective : Function.Injective tk := by decide
abbrev tokOf (cj : Dev nD × Fin 20) : GSem nD τ sig × ℕ × Bool := (kcell (cj.1, (tk cj.2).1), 0, (tk cj.2).2)
theorem tokOf_injective : Function.Injective (tokOf : Dev nD × Fin 20 → GSem nD τ sig × ℕ × Bool) := by
  rintro ⟨c, j⟩ ⟨c', j'⟩ h
  have h1 : kcell (c, (tk j).1) = kcell (c', (tk j').1) := congrArg (fun x : GSem nD τ sig × ℕ × Bool => x.1) h
  have h2 : (tk j).2 = (tk j').2 := congrArg (fun x : GSem nD τ sig × ℕ × Bool => x.2.2) h
  obtain ⟨rfl, h4⟩ := Prod.mk.inj (kcell_injective h1)
  rw [tk_injective (Prod.ext h4 h2)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells, as minted. -/
def toks (c : Dev nD) : sProp 𝕄 := bigSep Finset.univ fun j : Fin 20 => dutyTok ER (tokOf (c, j)).1 0 (tokOf (c, j)).2.2
/-- The same, one by one. -/
def ownToks (c : Dev nD) : sProp 𝕄 :=
  iprop(dutyTok ER ((c : Thread nD τ), .reg barS) 0 false
    ∗ dutyTok ER ((c : Thread nD τ), .reg barS) 0 true
    ∗ dutyTok ER ((c : Thread nD τ), .dma ysS) 0 false
    ∗ dutyTok ER ((c : Thread nD τ), .dma yrS) 0 false
    ∗ dutyTok ER ((c : Thread nD τ), .dma xsS0) 0 false
    ∗ dutyTok ER ((c : Thread nD τ), .dma xsS1) 0 false
    ∗ dutyTok ER ((c : Thread nD τ), .dma xsS2) 0 false
    ∗ dutyTok ER ((c : Thread nD τ), .dma xsS3) 0 false
    ∗ dutyTok ER ((c : Thread nD τ), .dma xsS4) 0 false
    ∗ dutyTok ER ((c : Thread nD τ), .dma xsS5) 0 false
    ∗ dutyTok ER ((c : Thread nD τ), .dma xsS6) 0 false
    ∗ dutyTok ER ((c : Thread nD τ), .dma xsS7) 0 false
    ∗ dutyTok ER ((c : Thread nD τ), .dma xrS0) 0 false
    ∗ dutyTok ER ((c : Thread nD τ), .dma xrS1) 0 false
    ∗ dutyTok ER ((c : Thread nD τ), .dma xrS2) 0 false
    ∗ dutyTok ER ((c : Thread nD τ), .dma xrS3) 0 false
    ∗ dutyTok ER ((c : Thread nD τ), .dma xrS4) 0 false
    ∗ dutyTok ER ((c : Thread nD τ), .dma xrS5) 0 false
    ∗ dutyTok ER ((c : Thread nD τ), .dma xrS6) 0 false
    ∗ dutyTok ER ((c : Thread nD τ), .dma xrS7) 0 false)

/-- What the launch element deals device `c` (the theorem's `G`). -/
def G (c : Dev nD) : sProp 𝕄 :=
  iprop((bigSep Finset.univ fun k : Fin 19 => roundState ER (sched m) (kcell (c, k)) 0)
    ∗ (bigSep Finset.univ fun k : Fin 19 => iprop(atPos ER (kcell (c, k)) 0 ∅ 0 ∗ reached ER (kcell (c, k)) 0)) ∗ toks c)

/-- What the global step makes of it (`G'`). -/
def G' (c : Dev nD) : sProp 𝕄 := iprop(∃ K : Dev nD × Fin 19 → ℕ, iprop(records m K ∗ linear c ∗ payToks c))

theorem bigSep_fin19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

theorem toks_eq (c : Dev nD) : toks (F := F) c = ownToks c := by unfold toks; rw [bigSep_fin20]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 19 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The own semaphores at zero, one by one; -/
theorem ownSems0_eq (c : Dev nD) : (Pipeline.ownSems0 (Ix := Unit) (Name := ℕ) (U := UU) (Lvl := ℕ) (Val := Elt F) (τ := τ) osem c : sProp 𝕄) = ownZero c := by
  rw [Pipeline.ownSems0_eq_of_list c osem [0, 1, 2, 3, 4, 5, 6, 7, 8, 9, 10, 11, 12, 13, 14, 15, 16, 17] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, bigSep_fin19]
  unfold ownZero
  iintro ⟨H, HB⟩
  isplitl [HB]; · iexact HB
  iexact H

/-! ## The global step: every cell's invariant allocated, the tokens dealt to their payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 19 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def yE : Dev nD ≃ Dev nD := ⟨ypeer, ypeer, ypeer_ypeer, ypeer_ypeer⟩
def xE : Dev nD ≃ Dev nD := ⟨xpeer, xpeer, xpeer_xpeer, xpeer_xpeer⟩

theorem perm (e : Dev nD ≃ Dev nD) (Φ : Dev nD → sProp 𝕄) : bigSep Finset.univ Φ ⊢ bigSep Finset.univ (fun c => Φ (e c)) :=
  Entails.of_eq (bigSep_univ_equiv e Φ)

/-- The tokens dealt across the mesh: a barrier's `false` token and a y-receive token to the y-peer, a barrier's `true`
    token and the x-receive tokens to the x-peer; the send tokens stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold ownToks payToks
  simp only [bigSep_sep']
  iintro ⟨T0, T1, T2, T3, T4, T5, T6, T7, T8, T9, T10, T11, T12, T13, T14, T15, T16, T17, T18, T19⟩
  isplitl [T0]
  · iapply (perm yE (fun c : Dev nD => (dutyTok ER (barCell c) 0 false : sProp 𝕄))); iexact T0
  isplitl [T1]
  · iapply (perm xE (fun c : Dev nD => (dutyTok ER (barCell c) 0 true : sProp 𝕄))); iexact T1
  isplitl [T2]; · iexact T2
  isplitl [T3]
  · iapply (perm yE (fun c : Dev nD => (dutyTok ER (yrCell c) 0 false : sProp 𝕄))); iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]
  · iapply (perm xE (fun c : Dev nD => (dutyTok ER ((c : Thread nD τ), .dma xrS0) 0 false : sProp 𝕄))); iexact T12
  isplitl [T13]
  · iapply (perm xE (fun c : Dev nD => (dutyTok ER ((c : Thread nD τ), .dma xrS1) 0 false : sProp 𝕄))); iexact T13
  isplitl [T14]
  · iapply (perm xE (fun c : Dev nD => (dutyTok ER ((c : Thread nD τ), .dma xrS2) 0 false : sProp 𝕄))); iexact T14
  isplitl [T15]
  · iapply (perm xE (fun c : Dev nD => (dutyTok ER ((c : Thread nD τ), .dma xrS3) 0 false : sProp 𝕄))); iexact T15
  isplitl [T16]
  · iapply (perm xE (fun c : Dev nD => (dutyTok ER ((c : Thread nD τ), .dma xrS4) 0 false : sProp 𝕄))); iexact T16
  isplitl [T17]
  · iapply (perm xE (fun c : Dev nD => (dutyTok ER ((c : Thread nD τ), .dma xrS5) 0 false : sProp 𝕄))); iexact T17
  isplitl [T18]
  · iapply (perm xE (fun c : Dev nD => (dutyTok ER ((c : Thread nD τ), .dma xrS6) 0 false : sProp 𝕄))); iexact T18
  iapply (perm xE (fun c : Dev nD => (dutyTok ER ((c : Thread nD τ), .dma xrS7) 0 false : sProp 𝕄))); iexact T19

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 19 → ℕ) (c : Dev nD) : iprop(records m K ∗ iprop(linear c ∗ payToks c)) ⊢ G' m c := by
  unfold G'
  iintro ⟨HR, HL, HT⟩
  iexists K
  isplitl [HR]; · iexact HR
  isplitl [HL] <;> iassumption

theorem linear_eq (c : Dev nD) : (bigSep Finset.univ fun k : Fin 19 => (atPos ER (kcell (c, k)) 0 ∅ 0 : sProp 𝕄)) = linear c := by
  rw [bigSep_fin19]; rfl

theorem regroup :
    (bigSep Finset.univ fun c : Dev nD => iprop((bigSep Finset.univ fun k => iprop(∃ κ : ℕ, cellInv ER (sched m) κ (kcell (c, k))))
          ∗ (bigSep Finset.univ fun k : Fin 19 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 19 => iprop(∃ κ : ℕ, cellInv ER (sched m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 19 => (atPos ER (kcell (c, k)) 0 ∅ 0 : sProp 𝕄)) payToks).symm).trans
      (bigSep_mono fun c _ => show _ ⊢ iprop(linear c ∗ payToks c) from Entails.of_eq (by rw [linear_eq])))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

/-- The pipeline's own waits, on staging semaphores (level 0), sit below everything a device owes. -/
theorem mayWait_stage (c : Dev nD) (q : DmaSem sig) (hq : kindOf (.dma q) = .other) (O : CellTallies nD τ sig Unit) (hO : O = O₀ c ∨ O = 0) :
    (levAts L lv : sProp 𝕄) ⊢ MayWait (c : Thread nD τ) (.dma q) () O := by
  rcases hO with rfl | rfl
  · have h0 : lv ((c : Thread nD τ), .dma q) () = 0 := by dsimp only [lv]; rw [hq]
    exact Pipeline.mayWait_of_levAts (by rw [L_tc]; exact Finset.mem_singleton_self _) fun g i hg => by
      rcases O₀_pos hg with ⟨s, rfl⟩ | rfl | rfl | rfl
      · exact ⟨by rw [L_tc]; exact Finset.mem_singleton_self _, by rw [h0, lv_xr]; decide⟩
      · exact ⟨by rw [L_tc]; exact Finset.mem_singleton_self _, by rw [h0, lv_yr]; decide⟩
      · exact ⟨by rw [L_tc]; exact Finset.mem_singleton_self _, by rw [h0, lv_bar]; decide⟩
      · exact ⟨by rw [L_tc]; exact Finset.mem_singleton_self _, by rw [h0, lv_bar]; decide⟩
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-- What device `c` holds when the region is entered: the ghost state, the launch credit, the levels. -/
def start (c : Dev nD) : sProp 𝕄 := iprop(G' m c ∗ creds c ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (KCred.creds_of_launch (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start G' scratch
  iintro ⟨⟨HG, Hcr, Hlev⟩, -, Hscr⟩
  isplitl [HG]; · iexact HG
  isplitl [Hcr]; · iexact Hcr
  isplitl [Hlev]; · iexact Hlev
  iexact Hscr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  iintro ⟨Hscr, Hz⟩
  isplitr; · iempintro
  isplitl [Hz]; · iexact Hz
  iexact Hscr

/-! ## The run -/

/-- Every windowed array of every device at what the proof data names after the one point. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of four devices, for any float values, from any memory with zero counters: every weakly fair
    execution of the program — the four kernels handshaking on the barrier semaphore, copying the state along the y
    axis and the half-precision rows along the x axis — terminates, and every final state has each windowed array
    at the named contents. -/
theorem run_arrays (hbody : SoundBody m) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The run with the result named: on every device the result array ends as the named pure function of the initial
    memory, and the four argument arrays end as they began. -/
theorem run_main (hbody : SoundBody m) :
    θ_run (defs (F := F)) (onTc (τ := τ) (main (F := F))) ⟨m, fun _ => 0, ρ⟩ (fun r => ∀ c : Dev nD,
        r.2.mem ((c.tc : Thread nD τ).loc main_v1) = KVal.outAtRes m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(h c 4).trans (KArrays.final_out m c), (h c 0).trans (KArrays.final_in0 m c), (h c 1).trans (KArrays.final_in1 m c),
      (h c 2).trans (KArrays.final_in2 m c), (h c 3).trans (KArrays.final_in3 m c)⟩) (run_arrays m ρ hbody)

/-- info: 'Cert.Kernel.KLaunch.run_main' depends on axioms: [propext, Classical.choice, Quot.sound] -/
#guard_msgs in #print axioms run_main

end Cert.Kernel.KLaunch

end
-- ==== Proof.KBodyGeoBits.lean ====
/-
  The eight slots of a [2, 256, 256] half-precision buffer (rows 64 q .. 64 q + 63 of batch row b, s = 4 b + q) are
  pairwise disjoint and cover the buffer: a buffer held whole is its eight slots held one by one, and back.
-/
import proofs.«900482_g7700000000000483_dist_ssm_v7x_xy2x2_y_b4_s256_d256_n16_f32_1_alg».proof.Proof.KValBits
import proofs.«900482_g7700000000000483_dist_ssm_v7x_xy2x2_y_b4_s256_d256_n16_f32_1_alg».proof.Proof.KProtoBits
import Idealize.ShloMosaic.Lib.Exec
import Idealize.ShloMosaic.Lib.Ring

set_option maxRecDepth 65536

noncomputable section
namespace Cert.Kernel.KBodyGeo

open Cert.Kernel Cert.Kernel.Gen
open Idealize.ShloMosaic Idealize.ShloMosaic.TcCoe Idealize.ShloMosaic.Tactic
open Idealize.SL Idealize.SL.RA Idealize.SL.BI
open Idealize.SL.BI (bigSep bigSepL bigSep_univ_eq_bigSepL)
open scoped Idealize.SL.BI
open Idealize.SL.BI.BIBase Idealize.SL.BI.Laws Idealize.SL.ProofMode Idealize.SL.Sem
open Cert.Kernel.KProto (UU obM ibM)

variable {F : FTy → Type} [FloatOps F]

local notation "𝕄" => MT nD τ sig Unit (Elt F) ℕ UU ℕ

/-- Two different slots share no element. -/
theorem slot_disj : ∀ s s' : Fin 8, s ≠ s' → LoadRect.disj (KVal.slot s) (KVal.slot s').toLoadRect = true := by decide

/-- Every element of the buffer lies in some slot. -/
theorem slot_cover (y : S2x256x256.Idx) : ∃ s : Fin 8, y ∈ (KVal.slot s).set := by
  have h := View.cover_of_tiledL (Val := fun _ => Unit) (e := .bf16)
    [⟨KVal.slot 0, fun _ => ()⟩, ⟨KVal.slot 1, fun _ => ()⟩, ⟨KVal.slot 2, fun _ => ()⟩, ⟨KVal.slot 3, fun _ => ()⟩,
     ⟨KVal.slot 4, fun _ => ()⟩, ⟨KVal.slot 5, fun _ => ()⟩, ⟨KVal.slot 6, fun _ => ()⟩, ⟨KVal.slot 7, fun _ => ()⟩]
    S1x64x256.size (by decide) y
  obtain ⟨p, hp, hy⟩ := h
  simp only [List.mem_cons, List.mem_singleton, List.not_mem_nil, or_false] at hp
  rcases hp with rfl | rfl | rfl | rfl | rfl | rfl | rfl | rfl
  exacts [⟨0, hy⟩, ⟨1, hy⟩, ⟨2, hy⟩, ⟨3, hy⟩, ⟨4, hy⟩, ⟨5, hy⟩, ⟨6, hy⟩, ⟨7, hy⟩]

/-- The elements of slot s, through the copy's own view. -/
def obI : Fin 8 → Finset S2x256x256.Idx
  | 0 => KProto.obS0.view.set
  | 1 => KProto.obS1.view.set
  | 2 => KProto.obS2.view.set
  | 3 => KProto.obS3.view.set
  | 4 => KProto.obS4.view.set
  | 5 => KProto.obS5.view.set
  | 6 => KProto.obS6.view.set
  | 7 => KProto.obS7.view.set

theorem obI_eq (s : Fin 8) : obI s = (KVal.slot s).set := by
  fin_cases s <;> exact (View.set_reshape _ _).trans (View.set_slice_whole _ _)

theorem obI_disj (s s' : Fin 8) (h : s ≠ s') : Disjoint (obI s) (obI s') := by
  have hd := View.disjoint_slice_of_disj obM.view _ _ (slot_disj s s' h)
  rw [View.set_slice_whole, View.set_slice_whole] at hd
  rw [obI_eq, obI_eq]; exact hd

theorem obI_cover : Finset.univ.biUnion obI = Finset.univ :=
  Finset.eq_univ_of_forall fun y => by
    obtain ⟨s, hs⟩ := slot_cover y
    exact Finset.mem_biUnion.mpr ⟨s, Finset.mem_univ _, by rw [obI_eq]; exact hs⟩

/-- The buffer held whole is its eight slots held one by one, at the same contents. -/
theorem cut_ob (c : Dev nD) (f : Buf (Elt F) (obM.view.loc (c : Thread nD τ))) :
    (obM.view.loc (c : Thread nD τ) ↦{fullShare} f : sProp 𝕄) =
      iprop((KProto.obS0.view.loc (c : Thread nD τ) ↦[KProto.obS0.view.set]{fullShare} f)
      ∗ (KProto.obS1.view.loc (c : Thread nD τ) ↦[KProto.obS1.view.set]{fullShare} f)
      ∗ (KProto.obS2.view.loc (c : Thread nD τ) ↦[KProto.obS2.view.set]{fullShare} f)
      ∗ (KProto.obS3.view.loc (c : Thread nD τ) ↦[KProto.obS3.view.set]{fullShare} f)
      ∗ (KProto.obS4.view.loc (c : Thread nD τ) ↦[KProto.obS4.view.set]{fullShare} f)
      ∗ (KProto.obS5.view.loc (c : Thread nD τ) ↦[KProto.obS5.view.set]{fullShare} f)
      ∗ (KProto.obS6.view.loc (c : Thread nD τ) ↦[KProto.obS6.view.set]{fullShare} f)
      ∗ (KProto.obS7.view.loc (c : Thread nD τ) ↦[KProto.obS7.view.set]{fullShare} f)) := by
  rw [Ring.pointsTo_blocks (ℓ := obM.view.loc (c : Thread nD τ)) obI obI_disj obI_cover f,
    bigSep_univ_eq_bigSepL [0, 1, 2, 3, 4, 5, 6, 7] (by decide) (by decide)]
  rfl

/-- Eight slots, each at some contents, are the buffer whole at some contents. -/
theorem join_ob (c : Dev nD) (f₀ : Buf (Elt F) (obM.view.loc (c : Thread nD τ))) :
    iprop((∃ f : Buf (Elt F) (KProto.obS0.view.loc (c : Thread nD τ)), KProto.obS0.view.loc (c : Thread nD τ) ↦[KProto.obS0.view.set]{fullShare} f)
      ∗ (∃ f : Buf (Elt F) (KProto.obS1.view.loc (c : Thread nD τ)), KProto.obS1.view.loc (c : Thread nD τ) ↦[KProto.obS1.view.set]{fullShare} f)
      ∗ (∃ f : Buf (Elt F) (KProto.obS2.view.loc (c : Thread nD τ)), KProto.obS2.view.loc (c : Thread nD τ) ↦[KProto.obS2.view.set]{fullShare} f)
      ∗ (∃ f : Buf (Elt F) (KProto.obS3.view.loc (c : Thread nD τ)), KProto.obS3.view.loc (c : Thread nD τ) ↦[KProto.obS3.view.set]{fullShare} f)
      ∗ (∃ f : Buf (Elt F) (KProto.obS4.view.loc (c : Thread nD τ)), KProto.obS4.view.loc (c : Thread nD τ) ↦[KProto.obS4.view.set]{fullShare} f)
      ∗ (∃ f : Buf (Elt F) (KProto.obS5.view.loc (c : Thread nD τ)), KProto.obS5.view.loc (c : Thread nD τ) ↦[KProto.obS5.view.set]{fullShare} f)
      ∗ (∃ f : Buf (Elt F) (KProto.obS6.view.loc (c : Thread nD τ)), KProto.obS6.view.loc (c : Thread nD τ) ↦[KProto.obS6.view.set]{fullShare} f)
      ∗ (∃ f : Buf (Elt F) (KProto.obS7.view.loc (c : Thread nD τ)), KProto.obS7.view.loc (c : Thread nD τ) ↦[KProto.obS7.view.set]{fullShare} f))
      ⊢ (iprop(∃ g : Buf (Elt F) (obM.view.loc (c : Thread nD τ)), obM.view.loc (c : Thread nD τ) ↦{fullShare} g) : sProp 𝕄) := by
  have h : bigSep Finset.univ (fun b : Fin 8 => iprop(∃ f : Buf (Elt F) (obM.view.loc (c : Thread nD τ)), obM.view.loc (c : Thread nD τ) ↦[obI b]{fullShare} f))
      ⊢ (iprop(∃ g : Buf (Elt F) (obM.view.loc (c : Thread nD τ)), obM.view.loc (c : Thread nD τ) ↦{fullShare} g) : sProp 𝕄) :=
    Ring.pointsTo_blocks_join_exists (ℓ := obM.view.loc (c : Thread nD τ)) obI obI_disj obI_cover f₀
  rw [bigSep_univ_eq_bigSepL [0, 1, 2, 3, 4, 5, 6, 7] (by decide) (by decide)] at h
  exact h

/-- The elements of slot s, through the copy's own view. -/
def ibI : Fin 8 → Finset S2x256x256.Idx
  | 0 => KProto.ibS0.view.set
  | 1 => KProto.ibS1.view.set
  | 2 => KProto.ibS2.view.set
  | 3 => KProto.ibS3.view.set
  | 4 => KProto.ibS4.view.set
  | 5 => KProto.ibS5.view.set
  | 6 => KProto.ibS6.view.set
  | 7 => KProto.ibS7.view.set

theorem ibI_eq (s : Fin 8) : ibI s = (KVal.slot s).set := by
  fin_cases s <;> exact (View.set_reshape _ _).trans (View.set_slice_whole _ _)

theorem ibI_disj (s s' : Fin 8) (h : s ≠ s') : Disjoint (ibI s) (ibI s') := by
  have hd := View.disjoint_slice_of_disj ibM.view _ _ (slot_disj s s' h)
  rw [View.set_slice_whole, View.set_slice_whole] at hd
  rw [ibI_eq, ibI_eq]; exact hd

theorem ibI_cover : Finset.univ.biUnion ibI = Finset.univ :=
  Finset.eq_univ_of_forall fun y => by
    obtain ⟨s, hs⟩ := slot_cover y
    exact Finset.mem_biUnion.mpr ⟨s, Finset.mem_univ _, by rw [ibI_eq]; exact hs⟩

/-- The buffer held whole is its eight slots held one by one, at the same contents. -/
theorem cut_ib (c : Dev nD) (f : Buf (Elt F) (ibM.view.loc (c : Thread nD τ))) :
    (ibM.view.loc (c : Thread nD τ) ↦{fullShare} f : sProp 𝕄) =
      iprop((KProto.ibS0.view.loc (c : Thread nD τ) ↦[KProto.ibS0.view.set]{fullShare} f)
      ∗ (KProto.ibS1.view.loc (c : Thread nD τ) ↦[KProto.ibS1.view.set]{fullShare} f)
      ∗ (KProto.ibS2.view.loc (c : Thread nD τ) ↦[KProto.ibS2.view.set]{fullShare} f)
      ∗ (KProto.ibS3.view.loc (c : Thread nD τ) ↦[KProto.ibS3.view.set]{fullShare} f)
      ∗ (KProto.ibS4.view.loc (c : Thread nD τ) ↦[KProto.ibS4.view.set]{fullShare} f)
      ∗ (KProto.ibS5.view.loc (c : Thread nD τ) ↦[KProto.ibS5.view.set]{fullShare} f)
      ∗ (KProto.ibS6.view.loc (c : Thread nD τ) ↦[KProto.ibS6.view.set]{fullShare} f)
      ∗ (KProto.ibS7.view.loc (c : Thread nD τ) ↦[KProto.ibS7.view.set]{fullShare} f)) := by
  rw [Ring.pointsTo_blocks (ℓ := ibM.view.loc (c : Thread nD τ)) ibI ibI_disj ibI_cover f,
    bigSep_univ_eq_bigSepL [0, 1, 2, 3, 4, 5, 6, 7] (by decide) (by decide)]
  rfl

/-- Eight slots, each at some contents, are the buffer whole at some contents. -/
theorem join_ib (c : Dev nD) (f₀ : Buf (Elt F) (ibM.view.loc (c : Thread nD τ))) :
    iprop((∃ f : Buf (Elt F) (KProto.ibS0.view.loc (c : Thread nD τ)), KProto.ibS0.view.loc (c : Thread nD τ) ↦[KProto.ibS0.view.set]{fullShare} f)
      ∗ (∃ f : Buf (Elt F) (KProto.ibS1.view.loc (c : Thread nD τ)), KProto.ibS1.view.loc (c : Thread nD τ) ↦[KProto.ibS1.view.set]{fullShare} f)
      ∗ (∃ f : Buf (Elt F) (KProto.ibS2.view.loc (c : Thread nD τ)), KProto.ibS2.view.loc (c : Thread nD τ) ↦[KProto.ibS2.view.set]{fullShare} f)
      ∗ (∃ f : Buf (Elt F) (KProto.ibS3.view.loc (c : Thread nD τ)), KProto.ibS3.view.loc (c : Thread nD τ) ↦[KProto.ibS3.view.set]{fullShare} f)
      ∗ (∃ f : Buf (Elt F) (KProto.ibS4.view.loc (c : Thread nD τ)), KProto.ibS4.view.loc (c : Thread nD τ) ↦[KProto.ibS4.view.set]{fullShare} f)
      ∗ (∃ f : Buf (Elt F) (KProto.ibS5.view.loc (c : Thread nD τ)), KProto.ibS5.view.loc (c : Thread nD τ) ↦[KProto.ibS5.view.set]{fullShare} f)
      ∗ (∃ f : Buf (Elt F) (KProto.ibS6.view.loc (c : Thread nD τ)), KProto.ibS6.view.loc (c : Thread nD τ) ↦[KProto.ibS6.view.set]{fullShare} f)
      ∗ (∃ f : Buf (Elt F) (KProto.ibS7.view.loc (c : Thread nD τ)), KProto.ibS7.view.loc (c : Thread nD τ) ↦[KProto.ibS7.view.set]{fullShare} f))
      ⊢ (iprop(∃ g : Buf (Elt F) (ibM.view.loc (c : Thread nD τ)), ibM.view.loc (c : Thread nD τ) ↦{fullShare} g) : sProp 𝕄) := by
  have h : bigSep Finset.univ (fun b : Fin 8 => iprop(∃ f : Buf (Elt F) (ibM.view.loc (c : Thread nD τ)), ibM.view.loc (c : Thread nD τ) ↦[ibI b]{fullShare} f))
      ⊢ (iprop(∃ g : Buf (Elt F) (ibM.view.loc (c : Thread nD τ)), ibM.view.loc (c : Thread nD τ) ↦{fullShare} g) : sProp 𝕄) :=
    Ring.pointsTo_blocks_join_exists (ℓ := ibM.view.loc (c : Thread nD τ)) ibI ibI_disj ibI_cover f₀
  rw [bigSep_univ_eq_bigSepL [0, 1, 2, 3, 4, 5, 6, 7] (by decide) (by decide)] at h
  exact h

end Cert.Kernel.KBodyGeo
end
-- ==== Proof.KBodyJoinBits.lean ====
/-
  Two buffers as the list of their writes. The half-precision receive buffer, landed slot by slot: the eight slots are
  pairwise disjoint and cover the buffer, so the eight landed slots held one by one are the buffer held whole at the eight
  writes, and that is the sender's buffer (the canonical contents of the same eight writes). The output staging buffer:
  its nine stores — the peer's two batch rows and the eight blocks of the device's own two batch rows — cover it, so after
  them it holds their canonical contents whatever it held before.
-/
import proofs.«900482_g7700000000000483_dist_ssm_v7x_xy2x2_y_b4_s256_d256_n16_f32_1_alg».proof.Proof.KValBits
import proofs.«900482_g7700000000000483_dist_ssm_v7x_xy2x2_y_b4_s256_d256_n16_f32_1_alg».proof.Proof.KProtoBits
import proofs.«900482_g7700000000000483_dist_ssm_v7x_xy2x2_y_b4_s256_d256_n16_f32_1_alg».proof.Proof.KBodyGeoBits
import Idealize.ShloMosaic.Lib.HeldBySlice
import Idealize.ShloMosaic.Lib.Pipeline.FrameBody
import Idealize.ShloMosaic.Lib.Ring

set_option maxRecDepth 65536

noncomputable section
namespace Cert.Kernel.KBodyJoin

open Cert.Kernel Cert.Kernel.Gen
open Idealize.ShloMosaic Idealize.ShloMosaic.TcCoe Idealize.ShloMosaic.Tactic
open Idealize.SL Idealize.SL.RA Idealize.SL.BI
open Idealize.SL.BI (bigSep bigSepL bigSep_univ_eq_bigSepL)
open scoped Idealize.SL.BI
open Idealize.SL.BI.BIBase Idealize.SL.BI.Laws Idealize.SL.ProofMode Idealize.SL.Sem
open Cert.Kernel.KProto (UU obM ibM)

variable {F : FTy → Type} [FloatOps F] (m : (ℓ : Loc nD τ sig) → Buf (Elt F) ℓ)

local notation "𝕄" => MT nD τ sig Unit (Elt F) ℕ KProto.UU ℕ

/-! ## The receive buffer -/

/-- A rectangle r of the receive buffer holding an unmasked write of w through it, over any prior contents. -/
abbrev landedAt (c : Dev nD) (r : Rect S2x256x256) (w : r.shape.Idx → Elt F .bf16) : sProp 𝕄 :=
  iprop(∃ f : Buf (Elt F) (ibM.view.loc (c : Thread nD τ)),
    (ibM.access r).loc (c : Thread nD τ) ↦[(ibM.access r).set]{fullShare} (ibM.access r).write (Elt F) f w Finset.univ)

/-- The rectangles of the eight writes, slot 7 first. -/
theorem obufL_rects (d : Dev nD) :
    (KVal.obufL m d).map (fun p => p.1) = ([7, 6, 5, 4, 3, 2, 1, 0] : List (Fin 8)).map KVal.slot := rfl

/-- Two different slots of the receive buffer share no element. -/
theorem access_disj (s s' : Fin 8) (h : s ≠ s') :
    Disjoint (ibM.access (KVal.slot s)).set (ibM.access (KVal.slot s')).set :=
  View.disjoint_slice_of_disj ibM.view _ _ (KBodyGeo.slot_disj s s' h)

/-- The eight writes' rectangles are pairwise disjoint. -/
theorem obufL_pairwise (d : Dev nD) :
    (KVal.obufL m d).Pairwise (fun p p' => Disjoint (ibM.access p.1).set (ibM.access p'.1).set) := by
  have h : ((KVal.obufL m d).map (fun p => p.1)).Pairwise
      (fun r r' => Disjoint (ibM.access r).set (ibM.access r').set) := by
    rw [obufL_rects, List.pairwise_map]
    exact List.Pairwise.imp (fun {s s'} hne => access_disj s s' hne)
      (by decide : ([7, 6, 5, 4, 3, 2, 1, 0] : List (Fin 8)).Pairwise (· ≠ ·))
  exact List.pairwise_map.mp h

/-- Every element of the buffer lies in the rectangle of one of the eight writes. -/
theorem obufL_cover (d : Dev nD) (y : S2x256x256.Idx) : ∃ p ∈ KVal.obufL m d, y ∈ p.1.set := by
  obtain ⟨s, hs⟩ := KBodyGeo.slot_cover y
  have hall : ∀ s : Fin 8, s ∈ ([7, 6, 5, 4, 3, 2, 1, 0] : List (Fin 8)) := by decide
  have hmem : KVal.slot s ∈ (KVal.obufL m d).map (fun p => p.1) := by
    rw [obufL_rects]
    exact List.mem_map.mpr ⟨s, hall s, rfl⟩
  obtain ⟨p, hp, hps⟩ := List.mem_map.mp hmem
  exact ⟨p, hp, by rw [hps]; exact hs⟩

/-- A piece's elements are among the elements under the list's rectangles. -/
theorem subset_piecesSet (t : Thread nD τ) {sp : Space} {s : Shape} {e : EltTy} (M : Memref sig t.2.kind sp s e) :
    ∀ (L : List (View.Piece (Elt F) s e)) (p : View.Piece (Elt F) s e), p ∈ L →
      (M.access p.1).set ⊆ Memref.piecesSet t M L
  | [], p, hp => absurd hp List.not_mem_nil
  | q :: L, p, hp => by
    unfold Memref.piecesSet
    rcases List.mem_cons.mp hp with rfl | hp
    · exact Finset.subset_union_left
    · exact (subset_piecesSet t M L p hp).trans Finset.subset_union_right

/-- The eight writes' rectangles are all of the receive buffer. -/
theorem obufL_piecesSet (c d : Dev nD) :
    Memref.piecesSet (c : Thread nD τ) ibM (KVal.obufL m d) = Finset.univ :=
  Finset.eq_univ_of_forall fun y => by
    obtain ⟨p, hp, hy⟩ := obufL_cover m d y
    refine subset_piecesSet (c : Thread nD τ) ibM _ p hp ?_
    rw [show (ibM.access p.1).set = p.1.set from View.set_slice_whole _ _]
    exact hy

/-- The eight landed slots held one by one are the receive buffer held whole at the eight writes over any contents h. -/
theorem join_ib_val (c : Dev nD) (h : Buf (Elt F) (ibM.view.loc (c : Thread nD τ))) :
    iprop(landedAt c KProto.sl0 (KVal.yblk16 m (KVal.xpeer c) 0) ∗ landedAt c KProto.sl1 (KVal.yblk16 m (KVal.xpeer c) 1) ∗ landedAt c KProto.sl2 (KVal.yblk16 m (KVal.xpeer c) 2) ∗ landedAt c KProto.sl3 (KVal.yblk16 m (KVal.xpeer c) 3)
      ∗ landedAt c KProto.sl4 (KVal.yblk16 m (KVal.xpeer c) 4) ∗ landedAt c KProto.sl5 (KVal.yblk16 m (KVal.xpeer c) 5) ∗ landedAt c KProto.sl6 (KVal.yblk16 m (KVal.xpeer c) 6) ∗ landedAt c KProto.sl7 (KVal.yblk16 m (KVal.xpeer c) 7))
      ⊢ (ibM.view.loc (c : Thread nD τ) ↦{fullShare} ibM.view.writes (Elt F) h (KVal.obufL m (KVal.xpeer c)) : sProp 𝕄) := by
  have hjoin : Memref.heldBySlice (c : Thread nD τ) ibM fullShare (KVal.obufL m (KVal.xpeer c))
      ⊢ (ibM.view.loc (c : Thread nD τ) ↦[Memref.piecesSet (c : Thread nD τ) ibM (KVal.obufL m (KVal.xpeer c))]{fullShare}
          ibM.view.writes (Elt F) h (KVal.obufL m (KVal.xpeer c)) : sProp 𝕄) :=
    Memref.heldBySlice_join (c : Thread nD τ) ibM fullShare h (KVal.obufL m (KVal.xpeer c))
      (obufL_pairwise m (KVal.xpeer c))
  rw [obufL_piecesSet m c (KVal.xpeer c)] at hjoin
  refine BIBase.Entails.trans ?_ hjoin
  show _ ⊢ iprop(landedAt c KProto.sl7 (KVal.yblk16 m (KVal.xpeer c) 7) ∗ landedAt c KProto.sl6 (KVal.yblk16 m (KVal.xpeer c) 6) ∗ landedAt c KProto.sl5 (KVal.yblk16 m (KVal.xpeer c) 5) ∗ landedAt c KProto.sl4 (KVal.yblk16 m (KVal.xpeer c) 4)
    ∗ landedAt c KProto.sl3 (KVal.yblk16 m (KVal.xpeer c) 3) ∗ landedAt c KProto.sl2 (KVal.yblk16 m (KVal.xpeer c) 2) ∗ landedAt c KProto.sl1 (KVal.yblk16 m (KVal.xpeer c) 1) ∗ landedAt c KProto.sl0 (KVal.yblk16 m (KVal.xpeer c) 0) ∗ emp)
  iintro ⟨H0, H1, H2, H3, H4, H5, H6, H7⟩
  isplitl [H7]; · iexact H7
  isplitl [H6]; · iexact H6
  isplitl [H5]; · iexact H5
  isplitl [H4]; · iexact H4
  isplitl [H3]; · iexact H3
  isplitl [H2]; · iexact H2
  isplitl [H1]; · iexact H1
  isplitl [H0]; · iexact H0
  iempintro

/-- The receive buffer at the eight writes, over any contents, is the x-peer's send buffer. -/
theorem ib_writes_eq (c : Dev nD) (h : Buf (Elt F) (ibM.view.loc (c : Thread nD τ))) :
    ibM.view.writes (Elt F) h (KVal.obufL m (KVal.xpeer c)) = KVal.ibufVal m c := by
  have h1 := View.read_writes_eq_canon ibM.view h (KVal.obufL m (KVal.xpeer c)) (obufL_cover m (KVal.xpeer c))
  simp only [Memref.view_whole, View.read_whole] at h1 ⊢
  unfold KVal.ibufVal KVal.obufV
  exact h1

/-! ## The output staging buffer -/

/-- Membership in a unit-stride rectangle of a [4, 256, 256] shape, coordinate by coordinate. -/
theorem mem_of_bounds (off size : Fin 3 → ℕ) (inb : ∀ a, off a + size a ≤ S4x256x256.size a)
    (o0 o1 o2 z0 z1 z2 : ℕ) (ho : off = ![o0, o1, o2]) (hz : size = ![z0, z1, z2]) (y : S4x256x256.Idx)
    (h0 : o0 ≤ (y (0 : Fin 3) : ℕ) ∧ (y (0 : Fin 3) : ℕ) < o0 + z0)
    (h1 : o1 ≤ (y (1 : Fin 3) : ℕ) ∧ (y (1 : Fin 3) : ℕ) < o1 + z1)
    (h2 : o2 ≤ (y (2 : Fin 3) : ℕ) ∧ (y (2 : Fin 3) : ℕ) < o2 + z2) :
    y ∈ (Rect.unit (s := S4x256x256) off size inb).set := by
  subst ho hz
  rw [Rect.mem_set_unit]
  intro a
  fin_cases a
  · exact h0
  · exact h1
  · exact h2

/-- Every element of the output staging buffer lies in the rectangle of one of the nine stores: batch rows
    2 - 2 mx and 3 - 2 mx in the peer's store, batch row 2 mx + r, rows 64 q .. 64 q + 63, in the store of block 4 r + q. -/
theorem out_cover (c : Dev nD) (y : S4x256x256.Idx) : ∃ p ∈ KVal.outL m c, y ∈ p.1.set := by
  have hc : c.val < 4 := c.isLt
  have h0 : (y (0 : Fin 3) : ℕ) < 4 := (y (0 : Fin 3)).isLt
  have h1 : (y (1 : Fin 3) : ℕ) < 256 := (y (1 : Fin 3)).isLt
  have h2 : (y (2 : Fin 3) : ℕ) < 256 := (y (2 : Fin 3)).isLt
  unfold KVal.outL
  by_cases hA : 2 - 2 * (c.val / 2) ≤ (y (0 : Fin 3) : ℕ) ∧ (y (0 : Fin 3) : ℕ) < 2 - 2 * (c.val / 2) + 2
  · exact ⟨_, List.mem_cons_self,
      mem_of_bounds (k0_off7 c) S2x256x256.size (Gen.k0_off7_inb c) (2 - 2 * (c.val / 2)) 0 0 2 256 256 (Gen.k0_off7_eq c) rfl y hA ⟨Nat.zero_le _, by omega⟩ ⟨Nat.zero_le _, by omega⟩⟩
  · have hr : (y (0 : Fin 3) : ℕ) = 2 * (c.val / 2) + 0 ∨ (y (0 : Fin 3) : ℕ) = 2 * (c.val / 2) + 1 := by omega
    have hq : (y (1 : Fin 3) : ℕ) < 64 ∨ (64 ≤ (y (1 : Fin 3) : ℕ) ∧ (y (1 : Fin 3) : ℕ) < 128)
        ∨ (128 ≤ (y (1 : Fin 3) : ℕ) ∧ (y (1 : Fin 3) : ℕ) < 192) ∨ 192 ≤ (y (1 : Fin 3) : ℕ) := by omega
    rcases hr with hr | hr <;> rcases hq with hq | hq | hq | hq
    · exact ⟨_, List.mem_cons_of_mem _ (List.mem_cons_of_mem _ (List.mem_cons_of_mem _ (List.mem_cons_of_mem _
        (List.mem_cons_of_mem _ (List.mem_cons_of_mem _ (List.mem_cons_of_mem _ (List.mem_cons_of_mem _
        List.mem_cons_self))))))),
        mem_of_bounds (k0_off3 c 0#32) S1x64x256.size (Gen.k0_off3_inb c 0) (2 * (c.val / 2) + 0) 0 0 1 64 256 (Gen.k0_off3_eq c ⟨0, by decide⟩) rfl y ⟨by omega, by omega⟩
          ⟨by omega, by omega⟩ ⟨Nat.zero_le _, by omega⟩⟩
    · exact ⟨_, List.mem_cons_of_mem _ (List.mem_cons_of_mem _ (List.mem_cons_of_mem _ (List.mem_cons_of_mem _
        (List.mem_cons_of_mem _ (List.mem_cons_of_mem _ (List.mem_cons_of_mem _ List.mem_cons_self)))))),
        mem_of_bounds (k0_off4 c 0#32) S1x64x256.size (Gen.k0_off4_inb c 0) (2 * (c.val / 2) + 0) 64 0 1 64 256 (Gen.k0_off4_eq c ⟨0, by decide⟩) rfl y ⟨by omega, by omega⟩
          ⟨by omega, by omega⟩ ⟨Nat.zero_le _, by omega⟩⟩
    · exact ⟨_, List.mem_cons_of_mem _ (List.mem_cons_of_mem _ (List.mem_cons_of_mem _ (List.mem_cons_of_mem _
        (List.mem_cons_of_mem _ (List.mem_cons_of_mem _ List.mem_cons_self))))),
        mem_of_bounds (k0_off5 c 0#32) S1x64x256.size (Gen.k0_off5_inb c 0) (2 * (c.val / 2) + 0) 128 0 1 64 256 (Gen.k0_off5_eq c ⟨0, by decide⟩) rfl y ⟨by omega, by omega⟩
          ⟨by omega, by omega⟩ ⟨Nat.zero_le _, by omega⟩⟩
    · exact ⟨_, List.mem_cons_of_mem _ (List.mem_cons_of_mem _ (List.mem_cons_of_mem _ (List.mem_cons_of_mem _
        (List.mem_cons_of_mem _ List.mem_cons_self)))),
        mem_of_bounds (k0_off6 c 0#32) S1x64x256.size (Gen.k0_off6_inb c 0) (2 * (c.val / 2) + 0) 192 0 1 64 256 (Gen.k0_off6_eq c ⟨0, by decide⟩) rfl y ⟨by omega, by omega⟩
          ⟨by omega, by omega⟩ ⟨Nat.zero_le _, by omega⟩⟩
    · exact ⟨_, List.mem_cons_of_mem _ (List.mem_cons_of_mem _ (List.mem_cons_of_mem _ (List.mem_cons_of_mem _
        List.mem_cons_self))),
        mem_of_bounds (k0_off3 c 1#32) S1x64x256.size (Gen.k0_off3_inb c 1) (2 * (c.val / 2) + 1) 0 0 1 64 256 (Gen.k0_off3_eq c ⟨1, by decide⟩) rfl y ⟨by omega, by omega⟩
          ⟨by omega, by omega⟩ ⟨Nat.zero_le _, by omega⟩⟩
    · exact ⟨_, List.mem_cons_of_mem _ (List.mem_cons_of_mem _ (List.mem_cons_of_mem _ List.mem_cons_self)),
        mem_of_bounds (k0_off4 c 1#32) S1x64x256.size (Gen.k0_off4_inb c 1) (2 * (c.val / 2) + 1) 64 0 1 64 256 (Gen.k0_off4_eq c ⟨1, by decide⟩) rfl y ⟨by omega, by omega⟩
          ⟨by omega, by omega⟩ ⟨Nat.zero_le _, by omega⟩⟩
    · exact ⟨_, List.mem_cons_of_mem _ (List.mem_cons_of_mem _ List.mem_cons_self),
        mem_of_bounds (k0_off5 c 1#32) S1x64x256.size (Gen.k0_off5_inb c 1) (2 * (c.val / 2) + 1) 128 0 1 64 256 (Gen.k0_off5_eq c ⟨1, by decide⟩) rfl y ⟨by omega, by omega⟩
          ⟨by omega, by omega⟩ ⟨Nat.zero_le _, by omega⟩⟩
    · exact ⟨_, List.mem_cons_of_mem _ List.mem_cons_self,
        mem_of_bounds (k0_off6 c 1#32) S1x64x256.size (Gen.k0_off6_inb c 1) (2 * (c.val / 2) + 1) 192 0 1 64 256 (Gen.k0_off6_eq c ⟨1, by decide⟩) rfl y ⟨by omega, by omega⟩
          ⟨by omega, by omega⟩ ⟨Nat.zero_le _, by omega⟩⟩

/-- The output staging buffer after its nine stores, over any contents, is their canonical contents. -/
theorem out_writes_eq (c : Dev nD) (f : Buf (Elt F) ((Memref.whole cc0_stg4_0).view.loc (c : Thread nD τ))) :
    (Memref.whole cc0_stg4_0).view.writes (Elt F) f (KVal.outL m c) = KVal.outAt m c := by
  have h1 := View.read_writes_eq_canon (Memref.whole cc0_stg4_0).view f (KVal.outL m c) (out_cover m c)
  simp only [Memref.view_whole, View.read_whole] at h1 ⊢
  unfold KVal.outAt KVal.outV
  exact h1

end Cert.Kernel.KBodyJoin

end
-- ==== Proof.KBodyCommonBits.lean ====
/-
  Small facts the body's run uses at a symbolic device: a buffer named by its reference is the buffer through its
  whole view; a buffer's elements on a device restated at another name of the same device; one store through the
  whole rectangle leaves its payload; the two word tests of the body per parity of my; the barrier's two payloads;
  the nine stores into the output staging buffer tile it.
-/
import proofs.«900482_g7700000000000483_dist_ssm_v7x_xy2x2_y_b4_s256_d256_n16_f32_1_alg».proof.Proof.KValBits
import proofs.«900482_g7700000000000483_dist_ssm_v7x_xy2x2_y_b4_s256_d256_n16_f32_1_alg».proof.Proof.KProtoBits
import proofs.«900482_g7700000000000483_dist_ssm_v7x_xy2x2_y_b4_s256_d256_n16_f32_1_alg».proof.Proof.KBodyJoinBits
import proofs.«900482_g7700000000000483_dist_ssm_v7x_xy2x2_y_b4_s256_d256_n16_f32_1_alg».proof.Proof.Gen.Kernel.Skeleton
import Idealize.ShloMosaic.Lib.Exec
import Idealize.ShloMosaic.Lib.Pipeline.Value

set_option maxRecDepth 65536

noncomputable section
namespace Cert.Kernel.KBodyCommon

open Cert.Kernel Cert.Kernel.Gen
open Idealize.ShloMosaic Idealize.ShloMosaic.TcCoe Idealize.ShloMosaic.Tactic
open Idealize.SL Idealize.SL.RA Idealize.SL.BI
open Idealize.SL.BI (bigSep bigSepL bigSep_univ_eq_bigSepL)
open scoped Idealize.SL.BI
open Idealize.SL.BI.BIBase Idealize.SL.BI.Laws Idealize.SL.ProofMode Idealize.SL.Sem
open Idealize.ShloMosaic.Rounds
open Cert.Kernel.KVal (ypeer xpeer)
open Cert.Kernel.KProto (UB UU EP ER hsM hiM obM ibM barS ysS yrS barCell ysCell yrCell xsCell xrCell sched)

variable {F : FTy → Type} [FloatOps F]

local notation "𝕄" => MT nD τ sig Unit (Elt F) ℕ UU ℕ

/-- A buffer named by its reference is the buffer through its whole view. -/
theorem toView (c : Dev nD) (b : Ref sig .tc) (f : Buf (Elt F) ((c : Thread nD τ).loc b)) :
    (((c : Thread nD τ).loc b) ↦{fullShare} f : sProp 𝕄) ⊢ ((Memref.whole b).view.loc (c : Thread nD τ) ↦{fullShare} f) := Entails.rfl

/-- Elements of a buffer on a device, restated at another name of the same device, at some contents. -/
theorem toDev {c d : Dev nD} (h : d = c) {sp : Space} {s : Shape} {e : EltTy} (M : Memref sig .tc sp s e)
    (f : Buf (Elt F) (M.view.loc (c : Thread nD τ))) :
    (M.view.loc (c : Thread nD τ) ↦[M.view.set]{fullShare} f : sProp 𝕄)
      ⊢ iprop(∃ f' : Buf (Elt F) (M.view.loc (d : Thread nD τ)), M.view.loc (d : Thread nD τ) ↦[M.view.set]{fullShare} f') := by
  subst h; iintro H; iexists f; iexact H

/-- The same for a buffer held whole. -/
theorem toDevW {c d : Dev nD} (h : d = c) {sp : Space} {s : Shape} {e : EltTy} (M : Memref sig .tc sp s e)
    (f : Buf (Elt F) (M.view.loc (c : Thread nD τ))) :
    (M.view.loc (c : Thread nD τ) ↦{fullShare} f : sProp 𝕄)
      ⊢ iprop(∃ f' : Buf (Elt F) (M.view.loc (d : Thread nD τ)), M.view.loc (d : Thread nD τ) ↦{fullShare} f') := by
  subst h; iintro H; iexists f; iexact H

/-- The y-peer's number under the branch on my = 0, whatever proof bounds it. -/
theorem dev3_eq' (c : Dev nD) (hlt : k0_dev3 c < nD) : (⟨k0_dev3 c, hlt⟩ : Dev nD) = ypeer c := Fin.ext (Gen.k0_dev3_eq c)

/-- One store through the whole rectangle of a buffer leaves exactly its payload. -/
theorem pt_whole1 (c : Dev nD) (b : Ref sig .tc) {off : Fin b.ty.shape.rank → Nat} (h : off = fun _ => 0)
    (inb : ∀ a, off a + b.ty.shape.size a ≤ b.ty.shape.size a) (f w : b.ty.Contents (Elt F)) :
    (View.loc (c : Thread nD τ) (Memref.whole b).view ↦{fullShare}
        ((Memref.whole b).view.writes (Elt F) f [⟨Rect.unit off b.ty.shape.size inb, w⟩] : Buf (Elt F) (View.loc (c : Thread nD τ) (Memref.whole b).view)) : sProp 𝕄)
      ⊢ (View.loc (c : Thread nD τ) (Memref.whole b).view ↦{fullShare} (w : Buf (Elt F) (View.loc (c : Thread nD τ) (Memref.whole b).view))) := by
  have e : (Memref.whole b).view.writes (Elt F) f [⟨Rect.unit off b.ty.shape.size inb, w⟩] = w :=
    Memref.write_access_unit_zero_univ (Elt F) b h inb f w
  rw [e]

/-- The word test "my = 1" of the body, on the devices with my = 0 and with my = 1. -/
theorem v159_even : ∀ c : Dev nD, c.val % 2 = 0 →
    (Scalar.cmpi .ne (Scalar.extui (Scalar.cmpi .eq (Scalar.remsi (Scalar.divsi (Dev.word c) 1#32) 2#32) 1#32)) 0#32 : BitVec 1) = 0#1 := by decide +kernel
theorem v159_odd : ∀ c : Dev nD, c.val % 2 = 1 →
    (Scalar.cmpi .ne (Scalar.extui (Scalar.cmpi .eq (Scalar.remsi (Scalar.divsi (Dev.word c) 1#32) 2#32) 1#32)) 0#32 : BitVec 1) = 1#1 := by decide +kernel
/-- The word test "my = 0" of the body. -/
theorem v501_even : ∀ c : Dev nD, c.val % 2 = 0 →
    (Scalar.cmpi .ne (Scalar.extui (Scalar.cmpi .eq (Scalar.remsi (Scalar.divsi (Dev.word c) 1#32) 2#32) 0#32)) 0#32 : BitVec 1) = 1#1 := by decide +kernel
theorem v501_odd : ∀ c : Dev nD, c.val % 2 = 1 →
    (Scalar.cmpi .ne (Scalar.extui (Scalar.cmpi .eq (Scalar.remsi (Scalar.divsi (Dev.word c) 1#32) 2#32) 0#32)) 0#32 : BitVec 1) = 0#1 := by decide +kernel

variable (m : (ℓ : Loc nD τ sig) → Buf (Elt F) ℓ)

/-- The nine stores into the output staging buffer tile it: whatever it held, it ends at the named contents. -/
theorem out_writes_eq' (c : Dev nD) (f : Buf (Elt F) ((Memref.whole cc0_stg4_0).view.loc (c : Thread nD τ)))
    (L : List (View.Piece (Elt F) S4x256x256 .f32)) (hL : L = KVal.outL m c) :
    (Memref.whole cc0_stg4_0).view.writes (Elt F) f L = KVal.outAt m c := hL ▸ KBodyJoin.out_writes_eq m c f

/-- The barrier's round: the y-peer's payload and the x-peer's. -/
theorem bar_split (c : Dev nD) :
    bigSep Finset.univ (fun d : Bool => (sched (F := F) m).payload (barCell c) 0 d) = iprop(KProto.barPayY c ∗ KProto.barPayX c) := by
  rw [bigSep_univ_eq_bigSepL [false, true] (by decide) (by decide), Idealize.SL.BI.bigSepL_cons_cons, Idealize.SL.BI.bigSepL_singleton,
    KProto.payload_bar_false, KProto.payload_bar_true]
  rfl

/-- A load of the whole receive buffer after its eight landings reads the x-peer's rows. -/
theorem ibuf_read (c : Dev nD) :
    ibM.view.readCov (KVal.obufL m (xpeer c)) (Rect.unit (s := S2x256x256) ![0, 0, 0] S2x256x256.size inb_S2x256x256_S2x256x256_0_0_0).toLoadRect
      = KVal.obufV m (xpeer c) := by
  show _ = View.canon (KVal.obufL m (xpeer c))
  rw [View.readCov_eq_canon']
  exact View.ld_unit_zero (by funext a; fin_cases a <;> rfl) _ (View.canon (KVal.obufL m (xpeer c)))

end Cert.Kernel.KBodyCommon
end
-- ==== Proof.KSendBits.lean ====
/-
  The kernel's remote copies as rules at the schedule: the state copy along the y axis (from a device with my = 0
  into its y-peer's receive buffer) and the copy of each half-precision slot along the x axis (into the x-peer's
  receive buffer), each paying its send duty with the source given back and its receive duty with the contents landed.
-/
import proofs.«900482_g7700000000000483_dist_ssm_v7x_xy2x2_y_b4_s256_d256_n16_f32_1_alg».proof.Proof.KProtoBits
import Idealize.ShloMosaic.Lib.Writes
import Idealize.ShloMosaic.Lib.Tactic

noncomputable section

namespace Cert.Kernel.KSend

open Cert.Kernel Cert.Kernel.Gen Cert.Kernel.KProto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.KVal (ypeer xpeer ypeer_ypeer xpeer_xpeer)

variable {F : FTy → Type} [FloatOps F]

local notation "𝕄" => MT nD τ sig Unit (Elt F) ℕ UU ℕ

variable (m : (ℓ : Loc nD τ sig) → Buf (Elt F) ℓ)

/-- What a device with my = 1 finds in its receive buffer is what its y-peer sent. -/
theorem hinVal_ypeer (c : Dev nD) (hc : c.val % 2 = 0) : KVal.hinVal m (ypeer c) = KVal.hsendVal m c := by
  unfold KVal.hinVal KVal.hinV KVal.hsendVal
  rw [if_neg (by rw [KVal.ypeer_mod]; omega), ypeer_ypeer]

/-- The state copy, whole buffer to whole buffer, lands the source's contents. -/
theorem landed_y (c : Dev nD) (fd : Buf (Elt F) (hiM.view.loc (ypeer c : Thread nD τ))) (fs : Buf (Elt F) (hsM.view.loc (c : Thread nD τ))) :
    (hiM : Memref sig .tc .vmem S2x16x256 .f32).view.write (Elt F) fd ((hsM : Memref sig .tc .vmem S2x16x256 .f32).view.read (Elt F) fs) Finset.univ = fs := by
  show (View.whole cc0_scratch2).write (Elt F) fd ((View.whole cc0_scratch1).read (Elt F) fs) Finset.univ = fs
  rw [View.read_whole]
  exact View.write_whole_univ _ _ _

/-- The state copy from a device with my = 0 to its y-peer `n`. -/
theorem wp_send_y (c n : Dev nD) (hc : c.val % 2 = 0) (hn : n = ypeer c)
    {hsc : (hiM : Memref sig (Dev.tc n : Thread nD τ).2.kind .vmem S2x16x256 .f32).view.ref.isScScratch = false}
    {hsrc : (hsM : Memref sig .tc .vmem S2x16x256 .f32).view.WordExact} {hdst : (hiM : Memref sig .tc .vmem S2x16x256 .f32).view.WordExact}
    {hsem : DmaTarget.Typed .vmem (.dma yrS) (.remote (Dev.tc n : Thread nD τ) (hiM : Memref sig .tc .vmem S2x16x256 .f32) (.dma ysS) hsc)}
    {α : Type} {Q : α → sProp 𝕄} {k : PUnit → Prog (TpuEff nD τ sig (Elt F) Λ₀ .tc) α} {κ₁ κ₂ : ℕ}
    (fs : Buf (Elt F) (hsM.view.loc (c : Thread nD τ))) (hfs : fs = KVal.hsendVal m c)
    (fd : Buf (Elt F) (hiM.view.loc (ypeer c : Thread nD τ))) (O : CellTallies nD τ sig Unit) (W : Waits sig Unit) :
    iprop(cellInv ER (sched m) κ₁ (ysCell c) ∗ cellInv ER (sched m) κ₂ (yrCell (ypeer c))
        ∗ (hsM.view.loc (c : Thread nD τ) ↦{fullShare} fs) ∗ (hiM.view.loc (ypeer c : Thread nD τ) ↦{fullShare} fd)
        ∗ owes (c : Thread nD τ) (O + tallyAt (yrCell (ypeer c)) () NY) W
        ∗ dutyTok ER (ysCell c) 0 false ∗ reached ER (ysCell c) 0
        ∗ dutyTok ER (yrCell (ypeer c)) 0 false ∗ reached ER (yrCell (ypeer c)) 0)
      ⊢ iprop(((cred (tallyAt (ysCell c) () NY) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma hsM (.remote (Dev.tc n : Thread nD τ) hiM (.dma ysS) hsc) (.dma yrS) hsrc hdst hsem) k) Q) := by
  subst hn
  have hodd : (ypeer c).val % 2 = 1 := by rw [KVal.ypeer_mod]; omega
  have key : iprop(cellInv ER (sched m) κ₁ (ysCell c) ∗ cellInv ER (sched m) κ₂ (yrCell (ypeer c))
        ∗ (hsM.view.loc (c : Thread nD τ) ↦[hsM.view.set]{fullShare} fs) ∗ (hiM.view.loc (ypeer c : Thread nD τ) ↦[hiM.view.set]{fullShare} fd)
        ∗ owes (c : Thread nD τ) (O + tallyAt (yrCell (ypeer c)) () NY) W
        ∗ dutyTok ER (ysCell c) 0 false ∗ reached ER (ysCell c) 0
        ∗ dutyTok ER (yrCell (ypeer c)) 0 false ∗ reached ER (yrCell (ypeer c)) 0)
      ⊢ iprop(((cred (tallyAt (ysCell c) () NY) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma hsM (.remote (Dev.tc (ypeer c) : Thread nD τ) hiM (.dma ysS) hsc) (.dma yrS) hsrc hdst hsem) k) Q) := Rounds.wp_send_pointsTo 𝒱₀ ER (sched m) (c : Thread nD τ) none (κ₁ := κ₁) (κ₂ := κ₂) (hsc := hsc) (hsrc := hsrc) (hdst := hdst) (hsem := hsem)
    (src := hsM) (dst := hiM) (c' := (ypeer c : Thread nD τ)) (q := fullShare) (fs := fs) (k := k) (Q := Q)
    (r₁ := 0) (r₂ := 0) (d₁ := false) (d₂ := false) (fd := fd)
    (by rw [duties_ys m c hc]; exact Finset.mem_singleton_self _) (by rw [duties_yr m (ypeer c) hodd]; exact Finset.mem_singleton_self _)
    () () NY rfl (amount_ys m c false) (amount_yr m (ypeer c) false) O rfl (W := W)
    (by
      rw [payload_ys]; unfold ysPay; rw [View.set_whole]
      iintro H; iexists fs; iexact H)
    (by
      rw [payload_yr]; unfold yrPay; rw [landed_y, View.set_whole, hinVal_ypeer m c hc, hfs])
  rw [View.set_whole, View.set_whole] at key
  exact key

/-! ## A copy between squeezed slots -/

/-- Reading through a re-indexed view what was written, unmasked, through the view: the payload re-indexed. -/
theorem read_reshape_write {κ : Kind} {sp : Space} {s : Shape} {e : EltTy} (v : View sig κ sp s e) {s' : Shape} (h : s'.numel = s.numel)
    (g : v.ty.Contents (Elt F)) (P : s.Idx → Elt F e) :
    (v.reshape s' h).read (Elt F) (v.write (Elt F) g P Finset.univ) = fun y => P (Shape.reshapeEquiv h y) := by
  funext y
  rw [← View.read_write_of_mem (v := v) g P (M := Finset.univ) (x := Shape.reshapeEquiv h y) (Finset.mem_univ _)]
  rfl

/-- A copy from a re-indexed view of one buffer to the same re-indexing of a view of another lands, under the
    destination view, the payload last written under the source view. -/
theorem landed_slot {κ κ' : Kind} {sp sp' : Space} {s : Shape} {e : EltTy} (vd : View sig κ' sp' s e) (vs : View sig κ sp s e) {s' : Shape}
    (h : s'.numel = s.numel) (fd : vd.ty.Contents (Elt F)) (g : vs.ty.Contents (Elt F)) (P : s.Idx → Elt F e) :
    (vd.reshape s' h).write (Elt F) fd ((vs.reshape s' h).read (Elt F) (vs.write (Elt F) g P Finset.univ)) Finset.univ
      = vd.write (Elt F) fd P Finset.univ := by
  rw [View.write_reshape_univ, read_reshape_write]
  congr 1
  funext x
  exact congrArg P (Equiv.apply_symm_apply _ x)

/-- So the landing's points-to, under the re-indexed destination view, is the destination rectangle holding the payload
    written over whatever it held. -/
theorem pay_slot (t : Thread nD τ) {κ : Kind} {sp sp' : Space} {s : Shape} {e : EltTy} (vd : View sig t.2.kind sp' s e) (vs : View sig κ sp s e) {s' : Shape}
    (h : s'.numel = s.numel) (fd : Buf (Elt F) (vd.loc t)) (g : vs.ty.Contents (Elt F)) (P : s.Idx → Elt F e) :
    (((vd.reshape s' h).loc t) ↦[(vd.reshape s' h).set]{fullShare}
        (vd.reshape s' h).write (Elt F) fd ((vs.reshape s' h).read (Elt F) (vs.write (Elt F) g P Finset.univ)) Finset.univ : sProp 𝕄)
      ⊢ iprop(∃ f : Buf (Elt F) (vd.loc t), vd.loc t ↦[vd.set]{fullShare} vd.write (Elt F) f P Finset.univ) := by
  rw [landed_slot, View.set_reshape]
  iintro H; iexists fd; iexact H

/-- The copy of slot 0 from a device to its x-peer `n`. -/
theorem wp_send_x0 (c n : Dev nD) (hn : n = xpeer c)
    {hsc : (ibS0 : Memref sig (Dev.tc n : Thread nD τ).2.kind .vmem S64x256 .bf16).view.ref.isScScratch = false}
    {hsrc : (obS0 : Memref sig .tc .vmem S64x256 .bf16).view.WordExact} {hdst : (ibS0 : Memref sig .tc .vmem S64x256 .bf16).view.WordExact}
    {hsem : DmaTarget.Typed .vmem (.dma xrS0) (.remote (Dev.tc n : Thread nD τ) (ibS0 : Memref sig .tc .vmem S64x256 .bf16) (.dma xsS0) hsc)}
    {α : Type} {Q : α → sProp 𝕄} {k : PUnit → Prog (TpuEff nD τ sig (Elt F) Λ₀ .tc) α} {κ₁ κ₂ : ℕ}
    (fs : Buf (Elt F) (obS0.view.loc (c : Thread nD τ))) (g : Buf (Elt F) (obM.view.loc (c : Thread nD τ)))
    (hfs : fs = (obM.access sl0).write (Elt F) g (KVal.yblk16 m c 0) Finset.univ)
    (fd : Buf (Elt F) (ibS0.view.loc (xpeer c : Thread nD τ))) (O : CellTallies nD τ sig Unit) (W : Waits sig Unit) :
    iprop(cellInv ER (sched m) κ₁ (xsCell c 0) ∗ cellInv ER (sched m) κ₂ (xrCell (xpeer c) 0)
        ∗ (obS0.view.loc (c : Thread nD τ) ↦[obS0.view.set]{fullShare} fs) ∗ (ibS0.view.loc (xpeer c : Thread nD τ) ↦[ibS0.view.set]{fullShare} fd)
        ∗ owes (c : Thread nD τ) (O + tallyAt (xrCell (xpeer c) 0) () NX) W
        ∗ dutyTok ER (xsCell c 0) 0 false ∗ reached ER (xsCell c 0) 0
        ∗ dutyTok ER (xrCell (xpeer c) 0) 0 false ∗ reached ER (xrCell (xpeer c) 0) 0)
      ⊢ iprop(((cred (tallyAt (xsCell c 0) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS0 (.remote (Dev.tc n : Thread nD τ) ibS0 (.dma xsS0) hsc) (.dma xrS0) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 0) 0; rw [duties_xs]; exact Finset.mem_singleton_self _)
    (by show false ∈ (sched m).duties (xrCell (xpeer c) 0) 0; rw [duties_xr]; exact Finset.mem_singleton_self _)
    () () NX rfl (amount_xs m c 0 false) (amount_xr m (xpeer c) 0 false) O rfl (W := W)
    (by
      show _ ⊢ (sched m).payload (xsCell c 0) 0 false
      rw [payload_xs]
      show _ ⊢ iprop(∃ f : Buf (Elt F) (obS0.view.loc (c : Thread nD τ)), obS0.view.loc (c : Thread nD τ) ↦[obS0.view.set]{fullShare} f)
      iintro H; iexists fs; iexact H)
    (by
      show _ ⊢ (sched m).payload (xrCell (xpeer c) 0) 0 false
      rw [payload_xr, hfs, xrPay_0, xpeer_xpeer]
      exact pay_slot (xpeer c : Thread nD τ) (ibM.access sl0) (obM.access sl0) squeezes_S1x64x256_S64x256.numel_eq fd g (KVal.yblk16 m c 0))

/-- The copy of slot 1 from a device to its x-peer `n`. -/
theorem wp_send_x1 (c n : Dev nD) (hn : n = xpeer c)
    {hsc : (ibS1 : Memref sig (Dev.tc n : Thread nD τ).2.kind .vmem S64x256 .bf16).view.ref.isScScratch = false}
    {hsrc : (obS1 : Memref sig .tc .vmem S64x256 .bf16).view.WordExact} {hdst : (ibS1 : Memref sig .tc .vmem S64x256 .bf16).view.WordExact}
    {hsem : DmaTarget.Typed .vmem (.dma xrS1) (.remote (Dev.tc n : Thread nD τ) (ibS1 : Memref sig .tc .vmem S64x256 .bf16) (.dma xsS1) hsc)}
    {α : Type} {Q : α → sProp 𝕄} {k : PUnit → Prog (TpuEff nD τ sig (Elt F) Λ₀ .tc) α} {κ₁ κ₂ : ℕ}
    (fs : Buf (Elt F) (obS1.view.loc (c : Thread nD τ))) (g : Buf (Elt F) (obM.view.loc (c : Thread nD τ)))
    (hfs : fs = (obM.access sl1).write (Elt F) g (KVal.yblk16 m c 1) Finset.univ)
    (fd : Buf (Elt F) (ibS1.view.loc (xpeer c : Thread nD τ))) (O : CellTallies nD τ sig Unit) (W : Waits sig Unit) :
    iprop(cellInv ER (sched m) κ₁ (xsCell c 1) ∗ cellInv ER (sched m) κ₂ (xrCell (xpeer c) 1)
        ∗ (obS1.view.loc (c : Thread nD τ) ↦[obS1.view.set]{fullShare} fs) ∗ (ibS1.view.loc (xpeer c : Thread nD τ) ↦[ibS1.view.set]{fullShare} fd)
        ∗ owes (c : Thread nD τ) (O + tallyAt (xrCell (xpeer c) 1) () NX) W
        ∗ dutyTok ER (xsCell c 1) 0 false ∗ reached ER (xsCell c 1) 0
        ∗ dutyTok ER (xrCell (xpeer c) 1) 0 false ∗ reached ER (xrCell (xpeer c) 1) 0)
      ⊢ iprop(((cred (tallyAt (xsCell c 1) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS1 (.remote (Dev.tc n : Thread nD τ) ibS1 (.dma xsS1) hsc) (.dma xrS1) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 1) 0; rw [duties_xs]; exact Finset.mem_singleton_self _)
    (by show false ∈ (sched m).duties (xrCell (xpeer c) 1) 0; rw [duties_xr]; exact Finset.mem_singleton_self _)
    () () NX rfl (amount_xs m c 1 false) (amount_xr m (xpeer c) 1 false) O rfl (W := W)
    (by
      show _ ⊢ (sched m).payload (xsCell c 1) 0 false
      rw [payload_xs]
      show _ ⊢ iprop(∃ f : Buf (Elt F) (obS1.view.loc (c : Thread nD τ)), obS1.view.loc (c : Thread nD τ) ↦[obS1.view.set]{fullShare} f)
      iintro H; iexists fs; iexact H)
    (by
      show _ ⊢ (sched m).payload (xrCell (xpeer c) 1) 0 false
      rw [payload_xr, hfs, xrPay_1, xpeer_xpeer]
      exact pay_slot (xpeer c : Thread nD τ) (ibM.access sl1) (obM.access sl1) squeezes_S1x64x256_S64x256.numel_eq fd g (KVal.yblk16 m c 1))

/-- The copy of slot 2 from a device to its x-peer `n`. -/
theorem wp_send_x2 (c n : Dev nD) (hn : n = xpeer c)
    {hsc : (ibS2 : Memref sig (Dev.tc n : Thread nD τ).2.kind .vmem S64x256 .bf16).view.ref.isScScratch = false}
    {hsrc : (obS2 : Memref sig .tc .vmem S64x256 .bf16).view.WordExact} {hdst : (ibS2 : Memref sig .tc .vmem S64x256 .bf16).view.WordExact}
    {hsem : DmaTarget.Typed .vmem (.dma xrS2) (.remote (Dev.tc n : Thread nD τ) (ibS2 : Memref sig .tc .vmem S64x256 .bf16) (.dma xsS2) hsc)}
    {α : Type} {Q : α → sProp 𝕄} {k : PUnit → Prog (TpuEff nD τ sig (Elt F) Λ₀ .tc) α} {κ₁ κ₂ : ℕ}
    (fs : Buf (Elt F) (obS2.view.loc (c : Thread nD τ))) (g : Buf (Elt F) (obM.view.loc (c : Thread nD τ)))
    (hfs : fs = (obM.access sl2).write (Elt F) g (KVal.yblk16 m c 2) Finset.univ)
    (fd : Buf (Elt F) (ibS2.view.loc (xpeer c : Thread nD τ))) (O : CellTallies nD τ sig Unit) (W : Waits sig Unit) :
    iprop(cellInv ER (sched m) κ₁ (xsCell c 2) ∗ cellInv ER (sched m) κ₂ (xrCell (xpeer c) 2)
        ∗ (obS2.view.loc (c : Thread nD τ) ↦[obS2.view.set]{fullShare} fs) ∗ (ibS2.view.loc (xpeer c : Thread nD τ) ↦[ibS2.view.set]{fullShare} fd)
        ∗ owes (c : Thread nD τ) (O + tallyAt (xrCell (xpeer c) 2) () NX) W
        ∗ dutyTok ER (xsCell c 2) 0 false ∗ reached ER (xsCell c 2) 0
        ∗ dutyTok ER (xrCell (xpeer c) 2) 0 false ∗ reached ER (xrCell (xpeer c) 2) 0)
      ⊢ iprop(((cred (tallyAt (xsCell c 2) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS2 (.remote (Dev.tc n : Thread nD τ) ibS2 (.dma xsS2) hsc) (.dma xrS2) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 2) 0; rw [duties_xs]; exact Finset.mem_singleton_self _)
    (by show false ∈ (sched m).duties (xrCell (xpeer c) 2) 0; rw [duties_xr]; exact Finset.mem_singleton_self _)
    () () NX rfl (amount_xs m c 2 false) (amount_xr m (xpeer c) 2 false) O rfl (W := W)
    (by
      show _ ⊢ (sched m).payload (xsCell c 2) 0 false
      rw [payload_xs]
      show _ ⊢ iprop(∃ f : Buf (Elt F) (obS2.view.loc (c : Thread nD τ)), obS2.view.loc (c : Thread nD τ) ↦[obS2.view.set]{fullShare} f)
      iintro H; iexists fs; iexact H)
    (by
      show _ ⊢ (sched m).payload (xrCell (xpeer c) 2) 0 false
      rw [payload_xr, hfs, xrPay_2, xpeer_xpeer]
      exact pay_slot (xpeer c : Thread nD τ) (ibM.access sl2) (obM.access sl2) squeezes_S1x64x256_S64x256.numel_eq fd g (KVal.yblk16 m c 2))

/-- The copy of slot 3 from a device to its x-peer `n`. -/
theorem wp_send_x3 (c n : Dev nD) (hn : n = xpeer c)
    {hsc : (ibS3 : Memref sig (Dev.tc n : Thread nD τ).2.kind .vmem S64x256 .bf16).view.ref.isScScratch = false}
    {hsrc : (obS3 : Memref sig .tc .vmem S64x256 .bf16).view.WordExact} {hdst : (ibS3 : Memref sig .tc .vmem S64x256 .bf16).view.WordExact}
    {hsem : DmaTarget.Typed .vmem (.dma xrS3) (.remote (Dev.tc n : Thread nD τ) (ibS3 : Memref sig .tc .vmem S64x256 .bf16) (.dma xsS3) hsc)}
    {α : Type} {Q : α → sProp 𝕄} {k : PUnit → Prog (TpuEff nD τ sig (Elt F) Λ₀ .tc) α} {κ₁ κ₂ : ℕ}
    (fs : Buf (Elt F) (obS3.view.loc (c : Thread nD τ))) (g : Buf (Elt F) (obM.view.loc (c : Thread nD τ)))
    (hfs : fs = (obM.access sl3).write (Elt F) g (KVal.yblk16 m c 3) Finset.univ)
    (fd : Buf (Elt F) (ibS3.view.loc (xpeer c : Thread nD τ))) (O : CellTallies nD τ sig Unit) (W : Waits sig Unit) :
    iprop(cellInv ER (sched m) κ₁ (xsCell c 3) ∗ cellInv ER (sched m) κ₂ (xrCell (xpeer c) 3)
        ∗ (obS3.view.loc (c : Thread nD τ) ↦[obS3.view.set]{fullShare} fs) ∗ (ibS3.view.loc (xpeer c : Thread nD τ) ↦[ibS3.view.set]{fullShare} fd)
        ∗ owes (c : Thread nD τ) (O + tallyAt (xrCell (xpeer c) 3) () NX) W
        ∗ dutyTok ER (xsCell c 3) 0 false ∗ reached ER (xsCell c 3) 0
        ∗ dutyTok ER (xrCell (xpeer c) 3) 0 false ∗ reached ER (xrCell (xpeer c) 3) 0)
      ⊢ iprop(((cred (tallyAt (xsCell c 3) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS3 (.remote (Dev.tc n : Thread nD τ) ibS3 (.dma xsS3) hsc) (.dma xrS3) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 3) 0; rw [duties_xs]; exact Finset.mem_singleton_self _)
    (by show false ∈ (sched m).duties (xrCell (xpeer c) 3) 0; rw [duties_xr]; exact Finset.mem_singleton_self _)
    () () NX rfl (amount_xs m c 3 false) (amount_xr m (xpeer c) 3 false) O rfl (W := W)
    (by
      show _ ⊢ (sched m).payload (xsCell c 3) 0 false
      rw [payload_xs]
      show _ ⊢ iprop(∃ f : Buf (Elt F) (obS3.view.loc (c : Thread nD τ)), obS3.view.loc (c : Thread nD τ) ↦[obS3.view.set]{fullShare} f)
      iintro H; iexists fs; iexact H)
    (by
      show _ ⊢ (sched m).payload (xrCell (xpeer c) 3) 0 false
      rw [payload_xr, hfs, xrPay_3, xpeer_xpeer]
      exact pay_slot (xpeer c : Thread nD τ) (ibM.access sl3) (obM.access sl3) squeezes_S1x64x256_S64x256.numel_eq fd g (KVal.yblk16 m c 3))

/-- The copy of slot 4 from a device to its x-peer `n`. -/
theorem wp_send_x4 (c n : Dev nD) (hn : n = xpeer c)
    {hsc : (ibS4 : Memref sig (Dev.tc n : Thread nD τ).2.kind .vmem S64x256 .bf16).view.ref.isScScratch = false}
    {hsrc : (obS4 : Memref sig .tc .vmem S64x256 .bf16).view.WordExact} {hdst : (ibS4 : Memref sig .tc .vmem S64x256 .bf16).view.WordExact}
    {hsem : DmaTarget.Typed .vmem (.dma xrS4) (.remote (Dev.tc n : Thread nD τ) (ibS4 : Memref sig .tc .vmem S64x256 .bf16) (.dma xsS4) hsc)}
    {α : Type} {Q : α → sProp 𝕄} {k : PUnit → Prog (TpuEff nD τ sig (Elt F) Λ₀ .tc) α} {κ₁ κ₂ : ℕ}
    (fs : Buf (Elt F) (obS4.view.loc (c : Thread nD τ))) (g : Buf (Elt F) (obM.view.loc (c : Thread nD τ)))
    (hfs : fs = (obM.access sl4).write (Elt F) g (KVal.yblk16 m c 4) Finset.univ)
    (fd : Buf (Elt F) (ibS4.view.loc (xpeer c : Thread nD τ))) (O : CellTallies nD τ sig Unit) (W : Waits sig Unit) :
    iprop(cellInv ER (sched m) κ₁ (xsCell c 4) ∗ cellInv ER (sched m) κ₂ (xrCell (xpeer c) 4)
        ∗ (obS4.view.loc (c : Thread nD τ) ↦[obS4.view.set]{fullShare} fs) ∗ (ibS4.view.loc (xpeer c : Thread nD τ) ↦[ibS4.view.set]{fullShare} fd)
        ∗ owes (c : Thread nD τ) (O + tallyAt (xrCell (xpeer c) 4) () NX) W
        ∗ dutyTok ER (xsCell c 4) 0 false ∗ reached ER (xsCell c 4) 0
        ∗ dutyTok ER (xrCell (xpeer c) 4) 0 false ∗ reached ER (xrCell (xpeer c) 4) 0)
      ⊢ iprop(((cred (tallyAt (xsCell c 4) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS4 (.remote (Dev.tc n : Thread nD τ) ibS4 (.dma xsS4) hsc) (.dma xrS4) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 4) 0; rw [duties_xs]; exact Finset.mem_singleton_self _)
    (by show false ∈ (sched m).duties (xrCell (xpeer c) 4) 0; rw [duties_xr]; exact Finset.mem_singleton_self _)
    () () NX rfl (amount_xs m c 4 false) (amount_xr m (xpeer c) 4 false) O rfl (W := W)
    (by
      show _ ⊢ (sched m).payload (xsCell c 4) 0 false
      rw [payload_xs]
      show _ ⊢ iprop(∃ f : Buf (Elt F) (obS4.view.loc (c : Thread nD τ)), obS4.view.loc (c : Thread nD τ) ↦[obS4.view.set]{fullShare} f)
      iintro H; iexists fs; iexact H)
    (by
      show _ ⊢ (sched m).payload (xrCell (xpeer c) 4) 0 false
      rw [payload_xr, hfs, xrPay_4, xpeer_xpeer]
      exact pay_slot (xpeer c : Thread nD τ) (ibM.access sl4) (obM.access sl4) squeezes_S1x64x256_S64x256.numel_eq fd g (KVal.yblk16 m c 4))

/-- The copy of slot 5 from a device to its x-peer `n`. -/
theorem wp_send_x5 (c n : Dev nD) (hn : n = xpeer c)
    {hsc : (ibS5 : Memref sig (Dev.tc n : Thread nD τ).2.kind .vmem S64x256 .bf16).view.ref.isScScratch = false}
    {hsrc : (obS5 : Memref sig .tc .vmem S64x256 .bf16).view.WordExact} {hdst : (ibS5 : Memref sig .tc .vmem S64x256 .bf16).view.WordExact}
    {hsem : DmaTarget.Typed .vmem (.dma xrS5) (.remote (Dev.tc n : Thread nD τ) (ibS5 : Memref sig .tc .vmem S64x256 .bf16) (.dma xsS5) hsc)}
    {α : Type} {Q : α → sProp 𝕄} {k : PUnit → Prog (TpuEff nD τ sig (Elt F) Λ₀ .tc) α} {κ₁ κ₂ : ℕ}
    (fs : Buf (Elt F) (obS5.view.loc (c : Thread nD τ))) (g : Buf (Elt F) (obM.view.loc (c : Thread nD τ)))
    (hfs : fs = (obM.access sl5).write (Elt F) g (KVal.yblk16 m c 5) Finset.univ)
    (fd : Buf (Elt F) (ibS5.view.loc (xpeer c : Thread nD τ))) (O : CellTallies nD τ sig Unit) (W : Waits sig Unit) :
    iprop(cellInv ER (sched m) κ₁ (xsCell c 5) ∗ cellInv ER (sched m) κ₂ (xrCell (xpeer c) 5)
        ∗ (obS5.view.loc (c : Thread nD τ) ↦[obS5.view.set]{fullShare} fs) ∗ (ibS5.view.loc (xpeer c : Thread nD τ) ↦[ibS5.view.set]{fullShare} fd)
        ∗ owes (c : Thread nD τ) (O + tallyAt (xrCell (xpeer c) 5) () NX) W
        ∗ dutyTok ER (xsCell c 5) 0 false ∗ reached ER (xsCell c 5) 0
        ∗ dutyTok ER (xrCell (xpeer c) 5) 0 false ∗ reached ER (xrCell (xpeer c) 5) 0)
      ⊢ iprop(((cred (tallyAt (xsCell c 5) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS5 (.remote (Dev.tc n : Thread nD τ) ibS5 (.dma xsS5) hsc) (.dma xrS5) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 5) 0; rw [duties_xs]; exact Finset.mem_singleton_self _)
    (by show false ∈ (sched m).duties (xrCell (xpeer c) 5) 0; rw [duties_xr]; exact Finset.mem_singleton_self _)
    () () NX rfl (amount_xs m c 5 false) (amount_xr m (xpeer c) 5 false) O rfl (W := W)
    (by
      show _ ⊢ (sched m).payload (xsCell c 5) 0 false
      rw [payload_xs]
      show _ ⊢ iprop(∃ f : Buf (Elt F) (obS5.view.loc (c : Thread nD τ)), obS5.view.loc (c : Thread nD τ) ↦[obS5.view.set]{fullShare} f)
      iintro H; iexists fs; iexact H)
    (by
      show _ ⊢ (sched m).payload (xrCell (xpeer c) 5) 0 false
      rw [payload_xr, hfs, xrPay_5, xpeer_xpeer]
      exact pay_slot (xpeer c : Thread nD τ) (ibM.access sl5) (obM.access sl5) squeezes_S1x64x256_S64x256.numel_eq fd g (KVal.yblk16 m c 5))

/-- The copy of slot 6 from a device to its x-peer `n`. -/
theorem wp_send_x6 (c n : Dev nD) (hn : n = xpeer c)
    {hsc : (ibS6 : Memref sig (Dev.tc n : Thread nD τ).2.kind .vmem S64x256 .bf16).view.ref.isScScratch = false}
    {hsrc : (obS6 : Memref sig .tc .vmem S64x256 .bf16).view.WordExact} {hdst : (ibS6 : Memref sig .tc .vmem S64x256 .bf16).view.WordExact}
    {hsem : DmaTarget.Typed .vmem (.dma xrS6) (.remote (Dev.tc n : Thread nD τ) (ibS6 : Memref sig .tc .vmem S64x256 .bf16) (.dma xsS6) hsc)}
    {α : Type} {Q : α → sProp 𝕄} {k : PUnit → Prog (TpuEff nD τ sig (Elt F) Λ₀ .tc) α} {κ₁ κ₂ : ℕ}
    (fs : Buf (Elt F) (obS6.view.loc (c : Thread nD τ))) (g : Buf (Elt F) (obM.view.loc (c : Thread nD τ)))
    (hfs : fs = (obM.access sl6).write (Elt F) g (KVal.yblk16 m c 6) Finset.univ)
    (fd : Buf (Elt F) (ibS6.view.loc (xpeer c : Thread nD τ))) (O : CellTallies nD τ sig Unit) (W : Waits sig Unit) :
    iprop(cellInv ER (sched m) κ₁ (xsCell c 6) ∗ cellInv ER (sched m) κ₂ (xrCell (xpeer c) 6)
        ∗ (obS6.view.loc (c : Thread nD τ) ↦[obS6.view.set]{fullShare} fs) ∗ (ibS6.view.loc (xpeer c : Thread nD τ) ↦[ibS6.view.set]{fullShare} fd)
        ∗ owes (c : Thread nD τ) (O + tallyAt (xrCell (xpeer c) 6) () NX) W
        ∗ dutyTok ER (xsCell c 6) 0 false ∗ reached ER (xsCell c 6) 0
        ∗ dutyTok ER (xrCell (xpeer c) 6) 0 false ∗ reached ER (xrCell (xpeer c) 6) 0)
      ⊢ iprop(((cred (tallyAt (xsCell c 6) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS6 (.remote (Dev.tc n : Thread nD τ) ibS6 (.dma xsS6) hsc) (.dma xrS6) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 6) 0; rw [duties_xs]; exact Finset.mem_singleton_self _)
    (by show false ∈ (sched m).duties (xrCell (xpeer c) 6) 0; rw [duties_xr]; exact Finset.mem_singleton_self _)
    () () NX rfl (amount_xs m c 6 false) (amount_xr m (xpeer c) 6 false) O rfl (W := W)
    (by
      show _ ⊢ (sched m).payload (xsCell c 6) 0 false
      rw [payload_xs]
      show _ ⊢ iprop(∃ f : Buf (Elt F) (obS6.view.loc (c : Thread nD τ)), obS6.view.loc (c : Thread nD τ) ↦[obS6.view.set]{fullShare} f)
      iintro H; iexists fs; iexact H)
    (by
      show _ ⊢ (sched m).payload (xrCell (xpeer c) 6) 0 false
      rw [payload_xr, hfs, xrPay_6, xpeer_xpeer]
      exact pay_slot (xpeer c : Thread nD τ) (ibM.access sl6) (obM.access sl6) squeezes_S1x64x256_S64x256.numel_eq fd g (KVal.yblk16 m c 6))

/-- The copy of slot 7 from a device to its x-peer `n`. -/
theorem wp_send_x7 (c n : Dev nD) (hn : n = xpeer c)
    {hsc : (ibS7 : Memref sig (Dev.tc n : Thread nD τ).2.kind .vmem S64x256 .bf16).view.ref.isScScratch = false}
    {hsrc : (obS7 : Memref sig .tc .vmem S64x256 .bf16).view.WordExact} {hdst : (ibS7 : Memref sig .tc .vmem S64x256 .bf16).view.WordExact}
    {hsem : DmaTarget.Typed .vmem (.dma xrS7) (.remote (Dev.tc n : Thread nD τ) (ibS7 : Memref sig .tc .vmem S64x256 .bf16) (.dma xsS7) hsc)}
    {α : Type} {Q : α → sProp 𝕄} {k : PUnit → Prog (TpuEff nD τ sig (Elt F) Λ₀ .tc) α} {κ₁ κ₂ : ℕ}
    (fs : Buf (Elt F) (obS7.view.loc (c : Thread nD τ))) (g : Buf (Elt F) (obM.view.loc (c : Thread nD τ)))
    (hfs : fs = (obM.access sl7).write (Elt F) g (KVal.yblk16 m c 7) Finset.univ)
    (fd : Buf (Elt F) (ibS7.view.loc (xpeer c : Thread nD τ))) (O : CellTallies nD τ sig Unit) (W : Waits sig Unit) :
    iprop(cellInv ER (sched m) κ₁ (xsCell c 7) ∗ cellInv ER (sched m) κ₂ (xrCell (xpeer c) 7)
        ∗ (obS7.view.loc (c : Thread nD τ) ↦[obS7.view.set]{fullShare} fs) ∗ (ibS7.view.loc (xpeer c : Thread nD τ) ↦[ibS7.view.set]{fullShare} fd)
        ∗ owes (c : Thread nD τ) (O + tallyAt (xrCell (xpeer c) 7) () NX) W
        ∗ dutyTok ER (xsCell c 7) 0 false ∗ reached ER (xsCell c 7) 0
        ∗ dutyTok ER (xrCell (xpeer c) 7) 0 false ∗ reached ER (xrCell (xpeer c) 7) 0)
      ⊢ iprop(((cred (tallyAt (xsCell c 7) () NX) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma obS7 (.remote (Dev.tc n : Thread nD τ) ibS7 (.dma xsS7) hsc) (.dma xrS7) hsrc hdst hsem) k) Q) := by
  subst hn
  exact Rounds.wp_send_pointsTo 𝒱₀ ER (sched m) (c : Thread nD τ) none (κ₁ := κ₁) (κ₂ := κ₂)
    (r₁ := 0) (r₂ := 0) (d₁ := false) (d₂ := false) (fd := fd)
    (by show false ∈ (sched m).duties (xsCell c 7) 0; rw [duties_xs]; exact Finset.mem_singleton_self _)
    (by show false ∈ (sched m).duties (xrCell (xpeer c) 7) 0; rw [duties_xr]; exact Finset.mem_singleton_self _)
    () () NX rfl (amount_xs m c 7 false) (amount_xr m (xpeer c) 7 false) O rfl (W := W)
    (by
      show _ ⊢ (sched m).payload (xsCell c 7) 0 false
      rw [payload_xs]
      show _ ⊢ iprop(∃ f : Buf (Elt F) (obS7.view.loc (c : Thread nD τ)), obS7.view.loc (c : Thread nD τ) ↦[obS7.view.set]{fullShare} f)
      iintro H; iexists fs; iexact H)
    (by
      show _ ⊢ (sched m).payload (xrCell (xpeer c) 7) 0 false
      rw [payload_xr, hfs, xrPay_7, xpeer_xpeer]
      exact pay_slot (xpeer c : Thread nD τ) (ibM.access sl7) (obM.access sl7) squeezes_S1x64x256_S64x256.numel_eq fd g (KVal.yblk16 m c 7))

end Cert.Kernel.KSend

end
-- ==== Proof.KCloseBits.lean ====
/-
  Closing a device's own cells when its body ends: a cell whose every duty has been consumed, or that never had one,
  has its counter at zero, and the counter is the device's again.
-/
import proofs.«900482_g7700000000000483_dist_ssm_v7x_xy2x2_y_b4_s256_d256_n16_f32_1_alg».proof.Proof.KProtoBits
import Idealize.ShloMosaic.Lib.Tactic

noncomputable section

namespace Cert.Kernel.KClose

open Cert.Kernel Cert.Kernel.Gen Cert.Kernel.KProto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The eighteen own cells closed at the end of the body on a device with my = 0: every cell the device waited on stands
    at its second round with nothing consumed, the y cell nobody pays at its first; their counters at zero are the device's again. -/
theorem close_even (K : Dev nD × Fin 19 → ℕ) (c : Dev nD) (h : c.val % 2 = 0) :
    iprop(records m K
      ∗ atPos ER (ysCell c) (0 + 1) ∅ 0
      ∗ atPos ER (yrCell c) (0) ∅ 0
      ∗ atPos ER ((c : Thread nD τ), .dma xsS0) (0 + 1) ∅ 0
      ∗ atPos ER ((c : Thread nD τ), .dma xsS1) (0 + 1) ∅ 0
      ∗ atPos ER ((c : Thread nD τ), .dma xsS2) (0 + 1) ∅ 0
      ∗ atPos ER ((c : Thread nD τ), .dma xsS3) (0 + 1) ∅ 0
      ∗ atPos ER ((c : Thread nD τ), .dma xsS4) (0 + 1) ∅ 0
      ∗ atPos ER ((c : Thread nD τ), .dma xsS5) (0 + 1) ∅ 0
      ∗ atPos ER ((c : Thread nD τ), .dma xsS6) (0 + 1) ∅ 0
      ∗ atPos ER ((c : Thread nD τ), .dma xsS7) (0 + 1) ∅ 0
      ∗ atPos ER ((c : Thread nD τ), .dma xrS0) (0 + 1) ∅ 0
      ∗ atPos ER ((c : Thread nD τ), .dma xrS1) (0 + 1) ∅ 0
      ∗ atPos ER ((c : Thread nD τ), .dma xrS2) (0 + 1) ∅ 0
      ∗ atPos ER ((c : Thread nD τ), .dma xrS3) (0 + 1) ∅ 0
      ∗ atPos ER ((c : Thread nD τ), .dma xrS4) (0 + 1) ∅ 0
      ∗ atPos ER ((c : Thread nD τ), .dma xrS5) (0 + 1) ∅ 0
      ∗ atPos ER ((c : Thread nD τ), .dma xrS6) (0 + 1) ∅ 0
      ∗ atPos ER ((c : Thread nD τ), .dma xrS7) (0 + 1) ∅ 0)
      ⊢ |={Set.univ}=> ownZero c := by
  iintro ⟨#HR, Hys, Hyr, Hxs0, Hxs1, Hxs2, Hxs3, Hxs4, Hxs5, Hxs6, Hxs7, Hxr0, Hxr1, Hxr2, Hxr3, Hxr4, Hxr5, Hxr6, Hxr7⟩
  imod (Rounds.cell_close ER (sched m) (Set.mem_univ _) (fun h => h) (R := 0 + 1) (duties_later m (ysCell c))) $$ [Hys] with ZHys
  · isplitr; · iapply (inv_ys m K c); iexact HR
    iexact Hys
  imod (Rounds.cell_close ER (sched m) (Set.mem_univ _) (fun h => h) (R := 0) (duties_yr_none m c h)) $$ [Hyr] with ZHyr
  · isplitr; · iapply (inv_yr m K c); iexact HR
    iexact Hyr
  imod (Rounds.cell_close ER (sched m) (Set.mem_univ _) (fun h => h) (R := 0 + 1) (duties_later m (xsCell c 0))) $$ [Hxs0] with ZHxs0
  · isplitr; · iapply (inv_xs m K c 0); iexact HR
    iexact Hxs0
  imod (Rounds.cell_close ER (sched m) (Set.mem_univ _) (fun h => h) (R := 0 + 1) (duties_later m (xsCell c 1))) $$ [Hxs1] with ZHxs1
  · isplitr; · iapply (inv_xs m K c 1); iexact HR
    iexact Hxs1
  imod (Rounds.cell_close ER (sched m) (Set.mem_univ _) (fun h => h) (R := 0 + 1) (duties_later m (xsCell c 2))) $$ [Hxs2] with ZHxs2
  · isplitr; · iapply (inv_xs m K c 2); iexact HR
    iexact Hxs2
  imod (Rounds.cell_close ER (sched m) (Set.mem_univ _) (fun h => h) (R := 0 + 1) (duties_later m (xsCell c 3))) $$ [Hxs3] with ZHxs3
  · isplitr; · iapply (inv_xs m K c 3); iexact HR
    iexact Hxs3
  imod (Rounds.cell_close ER (sched m) (Set.mem_univ _) (fun h => h) (R := 0 + 1) (duties_later m (xsCell c 4))) $$ [Hxs4] with ZHxs4
  · isplitr; · iapply (inv_xs m K c 4); iexact HR
    iexact Hxs4
  imod (Rounds.cell_close ER (sched m) (Set.mem_univ _) (fun h => h) (R := 0 + 1) (duties_later m (xsCell c 5))) $$ [Hxs5] with ZHxs5
  · isplitr; · iapply (inv_xs m K c 5); iexact HR
    iexact Hxs5
  imod (Rounds.cell_close ER (sched m) (Set.mem_univ _) (fun h => h) (R := 0 + 1) (duties_later m (xsCell c 6))) $$ [Hxs6] with ZHxs6
  · isplitr; · iapply (inv_xs m K c 6); iexact HR
    iexact Hxs6
  imod (Rounds.cell_close ER (sched m) (Set.mem_univ _) (fun h => h) (R := 0 + 1) (duties_later m (xsCell c 7))) $$ [Hxs7] with ZHxs7
  · isplitr; · iapply (inv_xs m K c 7); iexact HR
    iexact Hxs7
  imod (Rounds.cell_close ER (sched m) (Set.mem_univ _) (fun h => h) (R := 0 + 1) (duties_later m (xrCell c 0))) $$ [Hxr0] with ZHxr0
  · isplitr; · iapply (inv_xr m K c 0); iexact HR
    iexact Hxr0
  imod (Rounds.cell_close ER (sched m) (Set.mem_univ _) (fun h => h) (R := 0 + 1) (duties_later m (xrCell c 1))) $$ [Hxr1] with ZHxr1
  · isplitr; · iapply (inv_xr m K c 1); iexact HR
    iexact Hxr1
  imod (Rounds.cell_close ER (sched m) (Set.mem_univ _) (fun h => h) (R := 0 + 1) (duties_later m (xrCell c 2))) $$ [Hxr2] with ZHxr2
  · isplitr; · iapply (inv_xr m K c 2); iexact HR
    iexact Hxr2
  imod (Rounds.cell_close ER (sched m) (Set.mem_univ _) (fun h => h) (R := 0 + 1) (duties_later m (xrCell c 3))) $$ [Hxr3] with ZHxr3
  · isplitr; · iapply (inv_xr m K c 3); iexact HR
    iexact Hxr3
  imod (Rounds.cell_close ER (sched m) (Set.mem_univ _) (fun h => h) (R := 0 + 1) (duties_later m (xrCell c 4))) $$ [Hxr4] with ZHxr4
  · isplitr; · iapply (inv_xr m K c 4); iexact HR
    iexact Hxr4
  imod (Rounds.cell_close ER (sched m) (Set.mem_univ _) (fun h => h) (R := 0 + 1) (duties_later m (xrCell c 5))) $$ [Hxr5] with ZHxr5
  · isplitr; · iapply (inv_xr m K c 5); iexact HR
    iexact Hxr5
  imod (Rounds.cell_close ER (sched m) (Set.mem_univ _) (fun h => h) (R := 0 + 1) (duties_later m (xrCell c 6))) $$ [Hxr6] with ZHxr6
  · isplitr; · iapply (inv_xr m K c 6); iexact HR
    iexact Hxr6
  imod (Rounds.cell_close ER (sched m) (Set.mem_univ _) (fun h => h) (R := 0 + 1) (duties_later m (xrCell c 7))) $$ [Hxr7] with ZHxr7
  · isplitr; · iapply (inv_xr m K c 7); iexact HR
    iexact Hxr7
  imodintro
  unfold ownZero
  isplitl [ZHys]; · iexact ZHys
  isplitl [ZHyr]; · iexact ZHyr
  isplitl [ZHxs0]; · iexact ZHxs0
  isplitl [ZHxs1]; · iexact ZHxs1
  isplitl [ZHxs2]; · iexact ZHxs2
  isplitl [ZHxs3]; · iexact ZHxs3
  isplitl [ZHxs4]; · iexact ZHxs4
  isplitl [ZHxs5]; · iexact ZHxs5
  isplitl [ZHxs6]; · iexact ZHxs6
  isplitl [ZHxs7]; · iexact ZHxs7
  isplitl [ZHxr0]; · iexact ZHxr0
  isplitl [ZHxr1]; · iexact ZHxr1
  isplitl [ZHxr2]; · iexact ZHxr2
  isplitl [ZHxr3]; · iexact ZHxr3
  isplitl [ZHxr4]; · iexact ZHxr4
  isplitl [ZHxr5]; · iexact ZHxr5
  isplitl [ZHxr6]; · iexact ZHxr6
  iexact ZHxr7

/-- The eighteen own cells closed at the end of the body on a device with my = 1: every cell the device waited on stands
    at its second round with nothing consumed, the y cell nobody pays at its first; their counters at zero are the device's again. -/
theorem close_odd (K : Dev nD × Fin 19 → ℕ) (c : Dev nD) (h : c.val % 2 = 1) :
    iprop(records m K
      ∗ atPos ER (ysCell c) (0) ∅ 0
      ∗ atPos ER (yrCell c) (0 + 1) ∅ 0
      ∗ atPos ER ((c : Thread nD τ), .dma xsS0) (0 + 1) ∅ 0
      ∗ atPos ER ((c : Thread nD τ), .dma xsS1) (0 + 1) ∅ 0
      ∗ atPos ER ((c : Thread nD τ), .dma xsS2) (0 + 1) ∅ 0
      ∗ atPos ER ((c : Thread nD τ), .dma xsS3) (0 + 1) ∅ 0
      ∗ atPos ER ((c : Thread nD τ), .dma xsS4) (0 + 1) ∅ 0
      ∗ atPos ER ((c : Thread nD τ), .dma xsS5) (0 + 1) ∅ 0
      ∗ atPos ER ((c : Thread nD τ), .dma xsS6) (0 + 1) ∅ 0
      ∗ atPos ER ((c : Thread nD τ), .dma xsS7) (0 + 1) ∅ 0
      ∗ atPos ER ((c : Thread nD τ), .dma xrS0) (0 + 1) ∅ 0
      ∗ atPos ER ((c : Thread nD τ), .dma xrS1) (0 + 1) ∅ 0
      ∗ atPos ER ((c : Thread nD τ), .dma xrS2) (0 + 1) ∅ 0
      ∗ atPos ER ((c : Thread nD τ), .dma xrS3) (0 + 1) ∅ 0
      ∗ atPos ER ((c : Thread nD τ), .dma xrS4) (0 + 1) ∅ 0
      ∗ atPos ER ((c : Thread nD τ), .dma xrS5) (0 + 1) ∅ 0
      ∗ atPos ER ((c : Thread nD τ), .dma xrS6) (0 + 1) ∅ 0
      ∗ atPos ER ((c : Thread nD τ), .dma xrS7) (0 + 1) ∅ 0)
      ⊢ |={Set.univ}=> ownZero c := by
  iintro ⟨#HR, Hys, Hyr, Hxs0, Hxs1, Hxs2, Hxs3, Hxs4, Hxs5, Hxs6, Hxs7, Hxr0, Hxr1, Hxr2, Hxr3, Hxr4, Hxr5, Hxr6, Hxr7⟩
  imod (Rounds.cell_close ER (sched m) (Set.mem_univ _) (fun h => h) (R := 0) (duties_ys_none m c h)) $$ [Hys] with ZHys
  · isplitr; · iapply (inv_ys m K c); iexact HR
    iexact Hys
  imod (Rounds.cell_close ER (sched m) (Set.mem_univ _) (fun h => h) (R := 0 + 1) (duties_later m (yrCell c))) $$ [Hyr] with ZHyr
  · isplitr; · iapply (inv_yr m K c); iexact HR
    iexact Hyr
  imod (Rounds.cell_close ER (sched m) (Set.mem_univ _) (fun h => h) (R := 0 + 1) (duties_later m (xsCell c 0))) $$ [Hxs0] with ZHxs0
  · isplitr; · iapply (inv_xs m K c 0); iexact HR
    iexact Hxs0
  imod (Rounds.cell_close ER (sched m) (Set.mem_univ _) (fun h => h) (R := 0 + 1) (duties_later m (xsCell c 1))) $$ [Hxs1] with ZHxs1
  · isplitr; · iapply (inv_xs m K c 1); iexact HR
    iexact Hxs1
  imod (Rounds.cell_close ER (sched m) (Set.mem_univ _) (fun h => h) (R := 0 + 1) (duties_later m (xsCell c 2))) $$ [Hxs2] with ZHxs2
  · isplitr; · iapply (inv_xs m K c 2); iexact HR
    iexact Hxs2
  imod (Rounds.cell_close ER (sched m) (Set.mem_univ _) (fun h => h) (R := 0 + 1) (duties_later m (xsCell c 3))) $$ [Hxs3] with ZHxs3
  · isplitr; · iapply (inv_xs m K c 3); iexact HR
    iexact Hxs3
  imod (Rounds.cell_close ER (sched m) (Set.mem_univ _) (fun h => h) (R := 0 + 1) (duties_later m (xsCell c 4))) $$ [Hxs4] with ZHxs4
  · isplitr; · iapply (inv_xs m K c 4); iexact HR
    iexact Hxs4
  imod (Rounds.cell_close ER (sched m) (Set.mem_univ _) (fun h => h) (R := 0 + 1) (duties_later m (xsCell c 5))) $$ [Hxs5] with ZHxs5
  · isplitr; · iapply (inv_xs m K c 5); iexact HR
    iexact Hxs5
  imod (Rounds.cell_close ER (sched m) (Set.mem_univ _) (fun h => h) (R := 0 + 1) (duties_later m (xsCell c 6))) $$ [Hxs6] with ZHxs6
  · isplitr; · iapply (inv_xs m K c 6); iexact HR
    iexact Hxs6
  imod (Rounds.cell_close ER (sched m) (Set.mem_univ _) (fun h => h) (R := 0 + 1) (duties_later m (xsCell c 7))) $$ [Hxs7] with ZHxs7
  · isplitr; · iapply (inv_xs m K c 7); iexact HR
    iexact Hxs7
  imod (Rounds.cell_close ER (sched m) (Set.mem_univ _) (fun h => h) (R := 0 + 1) (duties_later m (xrCell c 0))) $$ [Hxr0] with ZHxr0
  · isplitr; · iapply (inv_xr m K c 0); iexact HR
    iexact Hxr0
  imod (Rounds.cell_close ER (sched m) (Set.mem_univ _) (fun h => h) (R := 0 + 1) (duties_later m (xrCell c 1))) $$ [Hxr1] with ZHxr1
  · isplitr; · iapply (inv_xr m K c 1); iexact HR
    iexact Hxr1
  imod (Rounds.cell_close ER (sched m) (Set.mem_univ _) (fun h => h) (R := 0 + 1) (duties_later m (xrCell c 2))) $$ [Hxr2] with ZHxr2
  · isplitr; · iapply (inv_xr m K c 2); iexact HR
    iexact Hxr2
  imod (Rounds.cell_close ER (sched m) (Set.mem_univ _) (fun h => h) (R := 0 + 1) (duties_later m (xrCell c 3))) $$ [Hxr3] with ZHxr3
  · isplitr; · iapply (inv_xr m K c 3); iexact HR
    iexact Hxr3
  imod (Rounds.cell_close ER (sched m) (Set.mem_univ _) (fun h => h) (R := 0 + 1) (duties_later m (xrCell c 4))) $$ [Hxr4] with ZHxr4
  · isplitr; · iapply (inv_xr m K c 4); iexact HR
    iexact Hxr4
  imod (Rounds.cell_close ER (sched m) (Set.mem_univ _) (fun h => h) (R := 0 + 1) (duties_later m (xrCell c 5))) $$ [Hxr5] with ZHxr5
  · isplitr; · iapply (inv_xr m K c 5); iexact HR
    iexact Hxr5
  imod (Rounds.cell_close ER (sched m) (Set.mem_univ _) (fun h => h) (R := 0 + 1) (duties_later m (xrCell c 6))) $$ [Hxr6] with ZHxr6
  · isplitr; · iapply (inv_xr m K c 6); iexact HR
    iexact Hxr6
  imod (Rounds.cell_close ER (sched m) (Set.mem_univ _) (fun h => h) (R := 0 + 1) (duties_later m (xrCell c 7))) $$ [Hxr7] with ZHxr7
  · isplitr; · iapply (inv_xr m K c 7); iexact HR
    iexact Hxr7
  imodintro
  unfold ownZero
  isplitl [ZHys]; · iexact ZHys
  isplitl [ZHyr]; · iexact ZHyr
  isplitl [ZHxs0]; · iexact ZHxs0
  isplitl [ZHxs1]; · iexact ZHxs1
  isplitl [ZHxs2]; · iexact ZHxs2
  isplitl [ZHxs3]; · iexact ZHxs3
  isplitl [ZHxs4]; · iexact ZHxs4
  isplitl [ZHxs5]; · iexact ZHxs5
  isplitl [ZHxs6]; · iexact ZHxs6
  isplitl [ZHxs7]; · iexact ZHxs7
  isplitl [ZHxr0]; · iexact ZHxr0
  isplitl [ZHxr1]; · iexact ZHxr1
  isplitl [ZHxr2]; · iexact ZHxr2
  isplitl [ZHxr3]; · iexact ZHxr3
  isplitl [ZHxr4]; · iexact ZHxr4
  isplitl [ZHxr5]; · iexact ZHxr5
  isplitl [ZHxr6]; · iexact ZHxr6
  iexact ZHxr7

end Cert.Kernel.KClose

end
-- ==== Proof.KBodyEvenBits.lean ====
/-
  The body at a symbolic device with my = 0: from what the launch hands the device (every cell's invariant, its
  positions, the tokens of the duties it pays, its credit, what it owes, the staged arguments, the scratch buffers) to
  the staged arguments unchanged, the output staging buffer at its named contents, nothing owed and its own semaphores
  at zero. The entry handshake, the local scan, the state copy to the y-peer, the eight row blocks with their copies to
  the x-peer, the waits and the last store, in program order.
-/
import proofs.«900482_g7700000000000483_dist_ssm_v7x_xy2x2_y_b4_s256_d256_n16_f32_1_alg».proof.Proof.KBodyCommonBits
import proofs.«900482_g7700000000000483_dist_ssm_v7x_xy2x2_y_b4_s256_d256_n16_f32_1_alg».proof.Proof.KBodyGeoBits
import proofs.«900482_g7700000000000483_dist_ssm_v7x_xy2x2_y_b4_s256_d256_n16_f32_1_alg».proof.Proof.KSendBits
import proofs.«900482_g7700000000000483_dist_ssm_v7x_xy2x2_y_b4_s256_d256_n16_f32_1_alg».proof.Proof.KCloseBits
import Idealize.ShloMosaic.Lib.HeldBySlice

set_option maxRecDepth 65536

noncomputable section
namespace Cert.Kernel.KBodyEven

open Cert.Kernel Cert.Kernel.Gen
open Idealize.ShloMosaic Idealize.ShloMosaic.TcCoe Idealize.ShloMosaic.Tactic
open Idealize.SL Idealize.SL.RA Idealize.SL.BI
open Idealize.SL.BI (bigSep bigSepL bigSep_univ_eq_bigSepL)
open scoped Idealize.SL.BI
open Idealize.SL.BI.BIBase Idealize.SL.BI.Laws Idealize.SL.ProofMode Idealize.SL.Sem
open Idealize.ShloMosaic.Rounds
open Cert.Kernel.KVal (ypeer xpeer)
open Cert.Kernel.KProto (UB UU EP ER hsM hiM obM ibM barS ysS yrS barCell ysCell yrCell xsCell xrCell sched)

variable {F : FTy → Type} [FloatOps F]

local notation "𝕄" => MT nD τ sig Unit (Elt F) ℕ UU ℕ

variable (m : (ℓ : Loc nD τ sig) → Buf (Elt F) ℓ)

attribute [local sl_canon] KVal.dev1_eq KVal.dev2_eq KVal.dev4_eq KVal.dev5_eq KVal.dev6_eq KVal.dev7_eq KVal.dev8_eq KVal.dev9_eq KVal.dev10_eq KVal.dev11_eq

set_option maxHeartbeats 8000000 in
theorem sound_even (K : Dev nD × Fin 19 → ℕ) (c : Dev nD) (hc : c.val % 2 = 0) :
    KProto.bodyPre m K c ⊢ wp frame (wpE (defs₀ (F := F)) KProto.𝒱₀ c none) Set.univ (Gen.bodyAt0 (F := F) Gen.t0_0)
      (fun _ => KProto.bodyPost m c) := by
  have hy1 : (ypeer c).val % 2 = 1 := by rw [KVal.ypeer_mod]; omega
  have hcond : k0_cond1 c = 1#1 := by rw [KVal.cond1_eq, if_pos hc]
  have hdev3 : (⟨k0_dev3 c, Gen.k0_dev3_lt c hcond⟩ : Dev nD) = ypeer c := KVal.dev3_eq c hcond
  have h159 := KBodyCommon.v159_even c hc
  have h501 := KBodyCommon.v501_even c hc
  have hv170 : KVal.v170 m c = Gen.k0_pay21 (KVal.v22 m c) (KVal.v121 m c) (KVal.v125 m c) (KVal.v126 m c) (KVal.v127 m c)
      ((Memref.whole cc0_scratch2).view.readCov
        [⟨Rect.unit (s := S2x16x256) ![0, 0, 0] S2x16x256.size Gen.inb_S2x16x256_S2x16x256_0_0_0, Gen.k0_pay18 (F := F)⟩]
        (Rect.unit (s := S2x16x256) ![0, 0, 0] S2x16x256.size Gen.inb_S2x16x256_S2x16x256_0_0_0).toLoadRect) := by
    unfold KVal.v170 KVal.v160; rw [if_pos hc]
  have hmwb := KProto.mayWait_bar (F := F) c
  rw [KProto.O₂_even hc] at hmwb; unfold KProto.OX at hmwb
  unfold Gen.bodyAt0
  unfold KProto.bodyPre KProto.linear KProto.payToks KProto.creds KProto.stagedIn KProto.scratch KProto.O₀ KProto.O₁
  rw [KProto.O₂_even hc]
  unfold KProto.OX
  iintro ⟨#Hrec, ⟨Pbar, Pys, Pyr, Pxs0, Pxs1, Pxs2, Pxs3, Pxs4, Pxs5, Pxs6, Pxs7, Pxr0, Pxr1, Pxr2, Pxr3, Pxr4, Pxr5, Pxr6, Pxr7⟩, ⟨Tby, Tbx, Tys, Tyr, Txs0, Txs1, Txs2, Txs3, Txs4, Txs5, Txs6, Txs7, Txr0, Txr1, Txr2, Txr3, Txr4, Txr5, Txr6, Txr7⟩, ⟨Cbar, Cyr, Cxr0, Cxr1, Cxr2, Cxr3, Cxr4, Cxr5, Cxr6, Cxr7⟩, #Hlev, ⟨%W, HO⟩, ⟨Hx, Ha, Hb, Hcc⟩, ⟨%fo, Ho⟩, ⟨⟨%fh, Hh⟩, ⟨%fs, Hs⟩, ⟨%fi, Hi⟩, ⟨%fob, Hob⟩, ⟨%fib, Hib⟩⟩⟩
  -- the invariants and first rounds of the cells the body touches: its own nineteen, and its peers' it pays into
  ihave #Ibar := (KProto.inv_bar m K c) $$ Hrec
  ihave #Iys := (KProto.inv_ys m K c) $$ Hrec
  ihave #Iyr := (KProto.inv_yr m K c) $$ Hrec
  ihave #Ixs0 := (KProto.inv_xs m K c 0) $$ Hrec
  ihave #Ixr0 := (KProto.inv_xr m K c 0) $$ Hrec
  ihave #Jxr0 := (KProto.inv_xr m K (xpeer c) 0) $$ Hrec
  ihave #Ixs1 := (KProto.inv_xs m K c 1) $$ Hrec
  ihave #Ixr1 := (KProto.inv_xr m K c 1) $$ Hrec
  ihave #Jxr1 := (KProto.inv_xr m K (xpeer c) 1) $$ Hrec
  ihave #Ixs2 := (KProto.inv_xs m K c 2) $$ Hrec
  ihave #Ixr2 := (KProto.inv_xr m K c 2) $$ Hrec
  ihave #Jxr2 := (KProto.inv_xr m K (xpeer c) 2) $$ Hrec
  ihave #Ixs3 := (KProto.inv_xs m K c 3) $$ Hrec
  ihave #Ixr3 := (KProto.inv_xr m K c 3) $$ Hrec
  ihave #Jxr3 := (KProto.inv_xr m K (xpeer c) 3) $$ Hrec
  ihave #Ixs4 := (KProto.inv_xs m K c 4) $$ Hrec
  ihave #Ixr4 := (KProto.inv_xr m K c 4) $$ Hrec
  ihave #Jxr4 := (KProto.inv_xr m K (xpeer c) 4) $$ Hrec
  ihave #Ixs5 := (KProto.inv_xs m K c 5) $$ Hrec
  ihave #Ixr5 := (KProto.inv_xr m K c 5) $$ Hrec
  ihave #Jxr5 := (KProto.inv_xr m K (xpeer c) 5) $$ Hrec
  ihave #Ixs6 := (KProto.inv_xs m K c 6) $$ Hrec
  ihave #Ixr6 := (KProto.inv_xr m K c 6) $$ Hrec
  ihave #Jxr6 := (KProto.inv_xr m K (xpeer c) 6) $$ Hrec
  ihave #Ixs7 := (KProto.inv_xs m K c 7) $$ Hrec
  ihave #Ixr7 := (KProto.inv_xr m K c 7) $$ Hrec
  ihave #Jxr7 := (KProto.inv_xr m K (xpeer c) 7) $$ Hrec
  ihave #Jby := (KProto.inv_bar m K (ypeer c)) $$ Hrec
  ihave #Jbx := (KProto.inv_bar m K (xpeer c)) $$ Hrec
  ihave #Jyr := (KProto.inv_yr m K (ypeer c)) $$ Hrec
  ihave #Rbar := (KProto.reached_bar m K c) $$ Hrec
  ihave #Rys := (KProto.reached_ys m K c) $$ Hrec
  ihave #Ryr := (KProto.reached_yr m K c) $$ Hrec
  ihave #Rxs0 := (KProto.reached_xs m K c 0) $$ Hrec
  ihave #Rxr0 := (KProto.reached_xr m K c 0) $$ Hrec
  ihave #Sxr0 := (KProto.reached_xr m K (xpeer c) 0) $$ Hrec
  ihave #Rxs1 := (KProto.reached_xs m K c 1) $$ Hrec
  ihave #Rxr1 := (KProto.reached_xr m K c 1) $$ Hrec
  ihave #Sxr1 := (KProto.reached_xr m K (xpeer c) 1) $$ Hrec
  ihave #Rxs2 := (KProto.reached_xs m K c 2) $$ Hrec
  ihave #Rxr2 := (KProto.reached_xr m K c 2) $$ Hrec
  ihave #Sxr2 := (KProto.reached_xr m K (xpeer c) 2) $$ Hrec
  ihave #Rxs3 := (KProto.reached_xs m K c 3) $$ Hrec
  ihave #Rxr3 := (KProto.reached_xr m K c 3) $$ Hrec
  ihave #Sxr3 := (KProto.reached_xr m K (xpeer c) 3) $$ Hrec
  ihave #Rxs4 := (KProto.reached_xs m K c 4) $$ Hrec
  ihave #Rxr4 := (KProto.reached_xr m K c 4) $$ Hrec
  ihave #Sxr4 := (KProto.reached_xr m K (xpeer c) 4) $$ Hrec
  ihave #Rxs5 := (KProto.reached_xs m K c 5) $$ Hrec
  ihave #Rxr5 := (KProto.reached_xr m K c 5) $$ Hrec
  ihave #Sxr5 := (KProto.reached_xr m K (xpeer c) 5) $$ Hrec
  ihave #Rxs6 := (KProto.reached_xs m K c 6) $$ Hrec
  ihave #Rxr6 := (KProto.reached_xr m K c 6) $$ Hrec
  ihave #Sxr6 := (KProto.reached_xr m K (xpeer c) 6) $$ Hrec
  ihave #Rxs7 := (KProto.reached_xs m K c 7) $$ Hrec
  ihave #Rxr7 := (KProto.reached_xr m K c 7) $$ Hrec
  ihave #Sxr7 := (KProto.reached_xr m K (xpeer c) 7) $$ Hrec
  ihave #Sby := (KProto.reached_bar m K (ypeer c)) $$ Hrec
  ihave #Sbx := (KProto.reached_bar m K (xpeer c)) $$ Hrec
  ihave #Syr := (KProto.reached_yr m K (ypeer c)) $$ Hrec
  ihave #Qxr0 := (KProto.reached_xr m K (xpeer (xpeer c)) 0) $$ Hrec
  ihave #Qxr1 := (KProto.reached_xr m K (xpeer (xpeer c)) 1) $$ Hrec
  ihave #Qxr2 := (KProto.reached_xr m K (xpeer (xpeer c)) 2) $$ Hrec
  ihave #Qxr3 := (KProto.reached_xr m K (xpeer (xpeer c)) 3) $$ Hrec
  ihave #Qxr4 := (KProto.reached_xr m K (xpeer (xpeer c)) 4) $$ Hrec
  ihave #Qxr5 := (KProto.reached_xr m K (xpeer (xpeer c)) 5) $$ Hrec
  ihave #Qxr6 := (KProto.reached_xr m K (xpeer (xpeer c)) 6) $$ Hrec
  ihave #Qxr7 := (KProto.reached_xr m K (xpeer (xpeer c)) 7) $$ Hrec
  ihave #Qyr := (KProto.reached_yr m K (ypeer (ypeer c))) $$ Hrec
  -- every buffer through its whole view; the two half-precision buffers by their eight slots; what the handshake
  -- hands the peers restated at the peers' names for this device
  ihave Hx := (KBodyCommon.toView (F := F) c cc0_stg0_0 _) $$ Hx
  ihave Ha := (KBodyCommon.toView (F := F) c cc0_stg1_0 _) $$ Ha
  ihave Hb := (KBodyCommon.toView (F := F) c cc0_stg2_0 _) $$ Hb
  ihave Hcc := (KBodyCommon.toView (F := F) c cc0_stg3_0 _) $$ Hcc
  ihave Ho := (KBodyCommon.toView (F := F) c cc0_stg4_0 _) $$ Ho
  ihave Hh := (KBodyCommon.toView (F := F) c cc0_scratch0 _) $$ Hh
  ihave Hs := (KBodyCommon.toView (F := F) c cc0_scratch1 _) $$ Hs
  ihave Hi := (KBodyCommon.toView (F := F) c cc0_scratch2 _) $$ Hi
  ihave Hob := (KBodyCommon.toView (F := F) c cc0_scratch3 _) $$ Hob
  ihave Hib := (KBodyCommon.toView (F := F) c cc0_scratch4 _) $$ Hib
  ihave Hob := (Entails.of_eq (KBodyGeo.cut_ob (F := F) c fob)) $$ Hob
  icases Hob with ⟨Hob0, Hob1, Hob2, Hob3, Hob4, Hob5, Hob6, Hob7⟩
  ihave Hib := (Entails.of_eq (KBodyGeo.cut_ib (F := F) c fib)) $$ Hib
  icases Hib with ⟨Hib0, Hib1, Hib2, Hib3, Hib4, Hib5, Hib6, Hib7⟩
  ihave Hib0 := (KBodyCommon.toDev (F := F) (KVal.xpeer_xpeer c) KProto.ibS0 fib) $$ Hib0
  ihave Hib1 := (KBodyCommon.toDev (F := F) (KVal.xpeer_xpeer c) KProto.ibS1 fib) $$ Hib1
  ihave Hib2 := (KBodyCommon.toDev (F := F) (KVal.xpeer_xpeer c) KProto.ibS2 fib) $$ Hib2
  ihave Hib3 := (KBodyCommon.toDev (F := F) (KVal.xpeer_xpeer c) KProto.ibS3 fib) $$ Hib3
  ihave Hib4 := (KBodyCommon.toDev (F := F) (KVal.xpeer_xpeer c) KProto.ibS4 fib) $$ Hib4
  ihave Hib5 := (KBodyCommon.toDev (F := F) (KVal.xpeer_xpeer c) KProto.ibS5 fib) $$ Hib5
  ihave Hib6 := (KBodyCommon.toDev (F := F) (KVal.xpeer_xpeer c) KProto.ibS6 fib) $$ Hib6
  ihave Hib7 := (KBodyCommon.toDev (F := F) (KVal.xpeer_xpeer c) KProto.ibS7 fib) $$ Hib7
  sl_unfold [cc0_body]
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the barrier's payloads: the y-peer's receive buffer, the x-peer's eight receive slots
  ihave Hp := (Entails.of_eq (KBodyCommon.bar_split m c)) $$ Pbar_pay1
  icases Hp with ⟨Hpy, Hpx⟩
  ihave Hpy := (Entails.of_eq (KProto.barPayY_even (F := F) c hc)) $$ Hpy
  icases Hpy with ⟨⟨%fhy, Hhy⟩, #Ryr1⟩
  ihave Hpx := (Entails.of_eq (KProto.barPayX_def (F := F) c)) $$ Hpx
  icases Hpx with ⟨⟨%gx0, Hix0⟩, ⟨%gx1, Hix1⟩, ⟨%gx2, Hix2⟩, ⟨%gx3, Hix3⟩, ⟨%gx4, Hix4⟩, ⟨%gx5, Hix5⟩, ⟨%gx6, Hix6⟩, ⟨%gx7, Hix7⟩, -⟩
  -- the state copy to the y-peer
  ihave Hs := (KBodyCommon.pt_whole1 (F := F) c cc0_scratch1 (off := ![0, 0, 0]) (by funext a; fin_cases a <;> rfl) _ _ _) $$ Hs
  iapply (KSend.wp_send_y (F := F) m c (ypeer c) hc rfl _ rfl fhy _ _) $$ [Hs Hhy HO Tys Tyr]
  · isplitr; · iexact Iys
    isplitr; · iexact Jyr
    isplitl [Hs]; · iexact Hs
    isplitl [Hhy]; · iexact Hhy
    isplitl [HO]; · iexact HO
    isplitl [Tys]; · iexact Tys
    isplitr; · iexact Rys
    isplitl [Tyr]; · iexact Tyr
    iexact Syr
  iintro ⟨Cys, HO⟩
  sl_exec_parts (disch := first | simp only [KBodyCommon.dev3_eq', KVal.dev4_eq, KVal.dev5_eq, KVal.dev6_eq, KVal.dev7_eq, KVal.dev8_eq, KVal.dev9_eq, KVal.dev10_eq, KVal.dev11_eq] | exact (fun h => absurd (h159.symm.trans h) (by decide)))
  -- the copy of slot 0 to the x-peer
  have e0 : sound_even.sl.Hob0_w1 m c fob = (obM.access KProto.sl0).write (Elt F) fob (KVal.yblk16 m c 0) Finset.univ := by
    simp only [KVal.yblk16]; rw [hv170]; rfl
  iapply (KSend.wp_send_x0 (F := F) m c (xpeer c) rfl _ fob e0 gx0 _ _) $$ [Hob0 Hix0 HO Txs0 Txr0]
  · isplitr; · iexact Ixs0
    isplitr; · iexact Jxr0
    isplitl [Hob0]; · iexact Hob0
    isplitl [Hix0]; · iexact Hix0
    isplitl [HO]; · iexact HO
    isplitl [Txs0]; · iexact Txs0
    isplitr; · iexact Rxs0
    isplitl [Txr0]; · iexact Txr0
    iexact Sxr0
  iintro ⟨Cxs0, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 1 to the x-peer
  have e1 : sound_even.sl.Hob1_w1 m c fob = (obM.access KProto.sl1).write (Elt F) fob (KVal.yblk16 m c 1) Finset.univ := by
    simp only [KVal.yblk16]; rw [hv170]; rfl
  iapply (KSend.wp_send_x1 (F := F) m c (xpeer c) rfl _ fob e1 gx1 _ _) $$ [Hob1 Hix1 HO Txs1 Txr1]
  · isplitr; · iexact Ixs1
    isplitr; · iexact Jxr1
    isplitl [Hob1]; · iexact Hob1
    isplitl [Hix1]; · iexact Hix1
    isplitl [HO]; · iexact HO
    isplitl [Txs1]; · iexact Txs1
    isplitr; · iexact Rxs1
    isplitl [Txr1]; · iexact Txr1
    iexact Sxr1
  iintro ⟨Cxs1, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 2 to the x-peer
  have e2 : sound_even.sl.Hob2_w1 m c fob = (obM.access KProto.sl2).write (Elt F) fob (KVal.yblk16 m c 2) Finset.univ := by
    simp only [KVal.yblk16]; rw [hv170]; rfl
  iapply (KSend.wp_send_x2 (F := F) m c (xpeer c) rfl _ fob e2 gx2 _ _) $$ [Hob2 Hix2 HO Txs2 Txr2]
  · isplitr; · iexact Ixs2
    isplitr; · iexact Jxr2
    isplitl [Hob2]; · iexact Hob2
    isplitl [Hix2]; · iexact Hix2
    isplitl [HO]; · iexact HO
    isplitl [Txs2]; · iexact Txs2
    isplitr; · iexact Rxs2
    isplitl [Txr2]; · iexact Txr2
    iexact Sxr2
  iintro ⟨Cxs2, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 3 to the x-peer
  have e3 : sound_even.sl.Hob3_w1 m c fob = (obM.access KProto.sl3).write (Elt F) fob (KVal.yblk16 m c 3) Finset.univ := by
    simp only [KVal.yblk16]; rw [hv170]; rfl
  iapply (KSend.wp_send_x3 (F := F) m c (xpeer c) rfl _ fob e3 gx3 _ _) $$ [Hob3 Hix3 HO Txs3 Txr3]
  · isplitr; · iexact Ixs3
    isplitr; · iexact Jxr3
    isplitl [Hob3]; · iexact Hob3
    isplitl [Hix3]; · iexact Hix3
    isplitl [HO]; · iexact HO
    isplitl [Txs3]; · iexact Txs3
    isplitr; · iexact Rxs3
    isplitl [Txr3]; · iexact Txr3
    iexact Sxr3
  iintro ⟨Cxs3, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 4 to the x-peer
  have e4 : sound_even.sl.Hob4_w1 m c fob = (obM.access KProto.sl4).write (Elt F) fob (KVal.yblk16 m c 4) Finset.univ := by
    simp only [KVal.yblk16]; rw [hv170]; rfl
  iapply (KSend.wp_send_x4 (F := F) m c (xpeer c) rfl _ fob e4 gx4 _ _) $$ [Hob4 Hix4 HO Txs4 Txr4]
  · isplitr; · iexact Ixs4
    isplitr; · iexact Jxr4
    isplitl [Hob4]; · iexact Hob4
    isplitl [Hix4]; · iexact Hix4
    isplitl [HO]; · iexact HO
    isplitl [Txs4]; · iexact Txs4
    isplitr; · iexact Rxs4
    isplitl [Txr4]; · iexact Txr4
    iexact Sxr4
  iintro ⟨Cxs4, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 5 to the x-peer
  have e5 : sound_even.sl.Hob5_w1 m c fob = (obM.access KProto.sl5).write (Elt F) fob (KVal.yblk16 m c 5) Finset.univ := by
    simp only [KVal.yblk16]; rw [hv170]; rfl
  iapply (KSend.wp_send_x5 (F := F) m c (xpeer c) rfl _ fob e5 gx5 _ _) $$ [Hob5 Hix5 HO Txs5 Txr5]
  · isplitr; · iexact Ixs5
    isplitr; · iexact Jxr5
    isplitl [Hob5]; · iexact Hob5
    isplitl [Hix5]; · iexact Hix5
    isplitl [HO]; · iexact HO
    isplitl [Txs5]; · iexact Txs5
    isplitr; · iexact Rxs5
    isplitl [Txr5]; · iexact Txr5
    iexact Sxr5
  iintro ⟨Cxs5, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 6 to the x-peer
  have e6 : sound_even.sl.Hob6_w1 m c fob = (obM.access KProto.sl6).write (Elt F) fob (KVal.yblk16 m c 6) Finset.univ := by
    simp only [KVal.yblk16]; rw [hv170]; rfl
  iapply (KSend.wp_send_x6 (F := F) m c (xpeer c) rfl _ fob e6 gx6 _ _) $$ [Hob6 Hix6 HO Txs6 Txr6]
  · isplitr; · iexact Ixs6
    isplitr; · iexact Jxr6
    isplitl [Hob6]; · iexact Hob6
    isplitl [Hix6]; · iexact Hix6
    isplitl [HO]; · iexact HO
    isplitl [Txs6]; · iexact Txs6
    isplitr; · iexact Rxs6
    isplitl [Txr6]; · iexact Txr6
    iexact Sxr6
  iintro ⟨Cxs6, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 7 to the x-peer
  have e7 : sound_even.sl.Hob7_w1 m c fob = (obM.access KProto.sl7).write (Elt F) fob (KVal.yblk16 m c 7) Finset.univ := by
    simp only [KVal.yblk16]; rw [hv170]; rfl
  rw [← zero_add (tallyAt ((xpeer c : Thread nD τ), SemLoc.dma KProto.xrS7) () KProto.NX)]
  iapply (KSend.wp_send_x7 (F := F) m c (xpeer c) rfl _ fob e7 gx7 0 _) $$ [Hob7 Hix7 HO Txs7 Txr7]
  · isplitr; · iexact Ixs7
    isplitr; · iexact Jxr7
    isplitl [Hob7]; · iexact Hob7
    isplitl [Hix7]; · iexact Hix7
    isplitl [HO]; · iexact HO
    isplitl [Txs7]; · iexact Txs7
    isplitr; · iexact Rxs7
    isplitl [Txr7]; · iexact Txr7
    iexact Sxr7
  iintro ⟨Cxs7, HO⟩
  sl_exec_parts (disch := first | simp only [KBodyCommon.dev3_eq', KVal.dev4_eq, KVal.dev5_eq, KVal.dev6_eq, KVal.dev7_eq, KVal.dev8_eq, KVal.dev9_eq, KVal.dev10_eq, KVal.dev11_eq] | sl_exact h501)
  -- the eight received slots are the receive buffer whole
  ihave Hib := (KBodyJoin.join_ib_val (F := F) m c fib) $$ [Pxr0_pay1 Pxr1_pay1 Pxr2_pay1 Pxr3_pay1 Pxr4_pay1 Pxr5_pay1 Pxr6_pay1 Pxr7_pay1]
  · isplitl [Pxr0_pay1]; · iexists _; iexact Pxr0_pay1
    isplitl [Pxr1_pay1]; · iexists _; iexact Pxr1_pay1
    isplitl [Pxr2_pay1]; · iexists _; iexact Pxr2_pay1
    isplitl [Pxr3_pay1]; · iexists _; iexact Pxr3_pay1
    isplitl [Pxr4_pay1]; · iexists _; iexact Pxr4_pay1
    isplitl [Pxr5_pay1]; · iexists _; iexact Pxr5_pay1
    isplitl [Pxr6_pay1]; · iexists _; iexact Pxr6_pay1
    iexists _; iexact Pxr7_pay1
  sl_exec_parts
  -- the value of the output staging buffer: nine stores that tile it
  rw [KBodyCommon.out_writes_eq' (F := F) m c fo]
  rotate_left
  · have ev : sound_even.sl.v630 m c = KVal.obufV m (xpeer c) := KBodyCommon.ibuf_read m c
    unfold KVal.outL; simp only [KVal.yblk]; rw [hv170, ev]; rfl
  rw [wp_ret]
  imod (KClose.close_even (F := F) m K c hc) $$ [Pys Pyr Pxs0 Pxs1 Pxs2 Pxs3 Pxs4 Pxs5 Pxs6 Pxs7 Pxr0 Pxr1 Pxr2 Pxr3 Pxr4 Pxr5 Pxr6 Pxr7] with Hz
  · isplitr; · iexact Hrec
    isplitl [Pys]; · iexact Pys
    isplitl [Pyr]; · iexact Pyr
    isplitl [Pxs0]; · iexact Pxs0
    isplitl [Pxs1]; · iexact Pxs1
    isplitl [Pxs2]; · iexact Pxs2
    isplitl [Pxs3]; · iexact Pxs3
    isplitl [Pxs4]; · iexact Pxs4
    isplitl [Pxs5]; · iexact Pxs5
    isplitl [Pxs6]; · iexact Pxs6
    isplitl [Pxs7]; · iexact Pxs7
    isplitl [Pxr0]; · iexact Pxr0
    isplitl [Pxr1]; · iexact Pxr1
    isplitl [Pxr2]; · iexact Pxr2
    isplitl [Pxr3]; · iexact Pxr3
    isplitl [Pxr4]; · iexact Pxr4
    isplitl [Pxr5]; · iexact Pxr5
    isplitl [Pxr6]; · iexact Pxr6
    iexact Pxr7
  imodintro
  unfold KProto.bodyPost KProto.stagedIn KProto.scratch
  isplitl [HO]; · iexists _; iexact HO
  isplitl [Hx Ha Hb Hcc]
  · isplitl [Hx]; · iexact Hx
    isplitl [Ha]; · iexact Ha
    isplitl [Hb]; · iexact Hb
    iexact Hcc
  isplitl [Ho]; · iexact Ho
  isplitr [Hz]
  · isplitl [Hh]; · iexists _; iexact Hh
    isplitl [Pys_pay1]; · iexists _; iexact Pys_pay1
    isplitl [Hi]; · iexists _; iexact Hi
    isplitr [Hib]
    · iapply (KBodyGeo.join_ob (F := F) c fob)
      isplitl [Pxs0_pay1]; · iexists _; iexact Pxs0_pay1
      isplitl [Pxs1_pay1]; · iexists _; iexact Pxs1_pay1
      isplitl [Pxs2_pay1]; · iexists _; iexact Pxs2_pay1
      isplitl [Pxs3_pay1]; · iexists _; iexact Pxs3_pay1
      isplitl [Pxs4_pay1]; · iexists _; iexact Pxs4_pay1
      isplitl [Pxs5_pay1]; · iexists _; iexact Pxs5_pay1
      isplitl [Pxs6_pay1]; · iexists _; iexact Pxs6_pay1
      iexists _; iexact Pxs7_pay1
    iexists _; iexact Hib
  iexact Hz

end Cert.Kernel.KBodyEven
end
-- ==== Proof.KBodyOddBits.lean ====
/-
  The body at a symbolic device with my = 1: from what the launch hands the device (every cell's invariant, its
  positions, the tokens of the duties it pays, its credit, what it owes, the staged arguments, the scratch buffers) to
  the staged arguments unchanged, the output staging buffer at its named contents, nothing owed and its own semaphores
  at zero. The entry handshake, the local scan, the wait for the y-peer's state, the eight row blocks with their copies to
  the x-peer, the waits and the last store, in program order.
-/
import proofs.«900482_g7700000000000483_dist_ssm_v7x_xy2x2_y_b4_s256_d256_n16_f32_1_alg».proof.Proof.KBodyCommonBits
import proofs.«900482_g7700000000000483_dist_ssm_v7x_xy2x2_y_b4_s256_d256_n16_f32_1_alg».proof.Proof.KBodyGeoBits
import proofs.«900482_g7700000000000483_dist_ssm_v7x_xy2x2_y_b4_s256_d256_n16_f32_1_alg».proof.Proof.KSendBits
import proofs.«900482_g7700000000000483_dist_ssm_v7x_xy2x2_y_b4_s256_d256_n16_f32_1_alg».proof.Proof.KCloseBits
import Idealize.ShloMosaic.Lib.HeldBySlice

set_option maxRecDepth 65536

noncomputable section
namespace Cert.Kernel.KBodyOdd

open Cert.Kernel Cert.Kernel.Gen
open Idealize.ShloMosaic Idealize.ShloMosaic.TcCoe Idealize.ShloMosaic.Tactic
open Idealize.SL Idealize.SL.RA Idealize.SL.BI
open Idealize.SL.BI (bigSep bigSepL bigSep_univ_eq_bigSepL)
open scoped Idealize.SL.BI
open Idealize.SL.BI.BIBase Idealize.SL.BI.Laws Idealize.SL.ProofMode Idealize.SL.Sem
open Idealize.ShloMosaic.Rounds
open Cert.Kernel.KVal (ypeer xpeer)
open Cert.Kernel.KProto (UB UU EP ER hsM hiM obM ibM barS ysS yrS barCell ysCell yrCell xsCell xrCell sched)

variable {F : FTy → Type} [FloatOps F]

local notation "𝕄" => MT nD τ sig Unit (Elt F) ℕ UU ℕ

variable (m : (ℓ : Loc nD τ sig) → Buf (Elt F) ℓ)

attribute [local sl_canon] KVal.dev1_eq KVal.dev2_eq KVal.dev4_eq KVal.dev5_eq KVal.dev6_eq KVal.dev7_eq KVal.dev8_eq KVal.dev9_eq KVal.dev10_eq KVal.dev11_eq

set_option maxHeartbeats 8000000 in
theorem sound_odd (K : Dev nD × Fin 19 → ℕ) (c : Dev nD) (hc : c.val % 2 = 1) :
    KProto.bodyPre m K c ⊢ wp frame (wpE (defs₀ (F := F)) KProto.𝒱₀ c none) Set.univ (Gen.bodyAt0 (F := F) Gen.t0_0)
      (fun _ => KProto.bodyPost m c) := by
  have hy0 : (ypeer c).val % 2 = 0 := by rw [KVal.ypeer_mod]; omega
  have hcond : ¬ (k0_cond1 c = 1#1) := by rw [KVal.cond1_eq, if_neg (by omega)]; decide
  have h159 := KBodyCommon.v159_odd c hc
  have h501 := KBodyCommon.v501_odd c hc
  have hv170 : KVal.v170 m c = Gen.k0_pay21 (KVal.v22 m c) (KVal.v121 m c) (KVal.v125 m c) (KVal.v126 m c) (KVal.v127 m c)
      ((Memref.whole cc0_scratch2).view.readAt (Elt F)
        (Rect.unit (s := S2x16x256) ![0, 0, 0] S2x16x256.size Gen.inb_S2x16x256_S2x16x256_0_0_0).toLoadRect (KVal.hinVal m c)) := by
    unfold KVal.v170 KVal.v160 KVal.hinVal KVal.hinV; rw [if_neg (by omega), if_neg (by omega)]
  have hmwb := KProto.mayWait_bar (F := F) c
  rw [KProto.O₂_odd hc] at hmwb; unfold KProto.OX at hmwb
  have hmwy := KProto.mayWait_yr (F := F) c
  unfold KProto.OX at hmwy
  unfold Gen.bodyAt0
  unfold KProto.bodyPre KProto.linear KProto.payToks KProto.creds KProto.stagedIn KProto.scratch KProto.O₀ KProto.O₁
  rw [KProto.O₂_odd hc, if_pos hc]
  unfold KProto.OX
  iintro ⟨#Hrec, ⟨Pbar, Pys, Pyr, Pxs0, Pxs1, Pxs2, Pxs3, Pxs4, Pxs5, Pxs6, Pxs7, Pxr0, Pxr1, Pxr2, Pxr3, Pxr4, Pxr5, Pxr6, Pxr7⟩, ⟨Tby, Tbx, Tys, Tyr, Txs0, Txs1, Txs2, Txs3, Txs4, Txs5, Txs6, Txs7, Txr0, Txr1, Txr2, Txr3, Txr4, Txr5, Txr6, Txr7⟩, ⟨Cbar, Cyr, Cxr0, Cxr1, Cxr2, Cxr3, Cxr4, Cxr5, Cxr6, Cxr7⟩, #Hlev, ⟨%W, HO⟩, ⟨Hx, Ha, Hb, Hcc⟩, ⟨%fo, Ho⟩, ⟨⟨%fh, Hh⟩, ⟨%fs, Hs⟩, ⟨%fi, Hi⟩, ⟨%fob, Hob⟩, ⟨%fib, Hib⟩⟩⟩
  -- the invariants and first rounds of the cells the body touches: its own nineteen, and its peers' it pays into
  ihave #Ibar := (KProto.inv_bar m K c) $$ Hrec
  ihave #Iys := (KProto.inv_ys m K c) $$ Hrec
  ihave #Iyr := (KProto.inv_yr m K c) $$ Hrec
  ihave #Ixs0 := (KProto.inv_xs m K c 0) $$ Hrec
  ihave #Ixr0 := (KProto.inv_xr m K c 0) $$ Hrec
  ihave #Jxr0 := (KProto.inv_xr m K (xpeer c) 0) $$ Hrec
  ihave #Ixs1 := (KProto.inv_xs m K c 1) $$ Hrec
  ihave #Ixr1 := (KProto.inv_xr m K c 1) $$ Hrec
  ihave #Jxr1 := (KProto.inv_xr m K (xpeer c) 1) $$ Hrec
  ihave #Ixs2 := (KProto.inv_xs m K c 2) $$ Hrec
  ihave #Ixr2 := (KProto.inv_xr m K c 2) $$ Hrec
  ihave #Jxr2 := (KProto.inv_xr m K (xpeer c) 2) $$ Hrec
  ihave #Ixs3 := (KProto.inv_xs m K c 3) $$ Hrec
  ihave #Ixr3 := (KProto.inv_xr m K c 3) $$ Hrec
  ihave #Jxr3 := (KProto.inv_xr m K (xpeer c) 3) $$ Hrec
  ihave #Ixs4 := (KProto.inv_xs m K c 4) $$ Hrec
  ihave #Ixr4 := (KProto.inv_xr m K c 4) $$ Hrec
  ihave #Jxr4 := (KProto.inv_xr m K (xpeer c) 4) $$ Hrec
  ihave #Ixs5 := (KProto.inv_xs m K c 5) $$ Hrec
  ihave #Ixr5 := (KProto.inv_xr m K c 5) $$ Hrec
  ihave #Jxr5 := (KProto.inv_xr m K (xpeer c) 5) $$ Hrec
  ihave #Ixs6 := (KProto.inv_xs m K c 6) $$ Hrec
  ihave #Ixr6 := (KProto.inv_xr m K c 6) $$ Hrec
  ihave #Jxr6 := (KProto.inv_xr m K (xpeer c) 6) $$ Hrec
  ihave #Ixs7 := (KProto.inv_xs m K c 7) $$ Hrec
  ihave #Ixr7 := (KProto.inv_xr m K c 7) $$ Hrec
  ihave #Jxr7 := (KProto.inv_xr m K (xpeer c) 7) $$ Hrec
  ihave #Jby := (KProto.inv_bar m K (ypeer c)) $$ Hrec
  ihave #Jbx := (KProto.inv_bar m K (xpeer c)) $$ Hrec
  ihave #Jyr := (KProto.inv_yr m K (ypeer c)) $$ Hrec
  ihave #Rbar := (KProto.reached_bar m K c) $$ Hrec
  ihave #Rys := (KProto.reached_ys m K c) $$ Hrec
  ihave #Ryr := (KProto.reached_yr m K c) $$ Hrec
  ihave #Rxs0 := (KProto.reached_xs m K c 0) $$ Hrec
  ihave #Rxr0 := (KProto.reached_xr m K c 0) $$ Hrec
  ihave #Sxr0 := (KProto.reached_xr m K (xpeer c) 0) $$ Hrec
  ihave #Rxs1 := (KProto.reached_xs m K c 1) $$ Hrec
  ihave #Rxr1 := (KProto.reached_xr m K c 1) $$ Hrec
  ihave #Sxr1 := (KProto.reached_xr m K (xpeer c) 1) $$ Hrec
  ihave #Rxs2 := (KProto.reached_xs m K c 2) $$ Hrec
  ihave #Rxr2 := (KProto.reached_xr m K c 2) $$ Hrec
  ihave #Sxr2 := (KProto.reached_xr m K (xpeer c) 2) $$ Hrec
  ihave #Rxs3 := (KProto.reached_xs m K c 3) $$ Hrec
  ihave #Rxr3 := (KProto.reached_xr m K c 3) $$ Hrec
  ihave #Sxr3 := (KProto.reached_xr m K (xpeer c) 3) $$ Hrec
  ihave #Rxs4 := (KProto.reached_xs m K c 4) $$ Hrec
  ihave #Rxr4 := (KProto.reached_xr m K c 4) $$ Hrec
  ihave #Sxr4 := (KProto.reached_xr m K (xpeer c) 4) $$ Hrec
  ihave #Rxs5 := (KProto.reached_xs m K c 5) $$ Hrec
  ihave #Rxr5 := (KProto.reached_xr m K c 5) $$ Hrec
  ihave #Sxr5 := (KProto.reached_xr m K (xpeer c) 5) $$ Hrec
  ihave #Rxs6 := (KProto.reached_xs m K c 6) $$ Hrec
  ihave #Rxr6 := (KProto.reached_xr m K c 6) $$ Hrec
  ihave #Sxr6 := (KProto.reached_xr m K (xpeer c) 6) $$ Hrec
  ihave #Rxs7 := (KProto.reached_xs m K c 7) $$ Hrec
  ihave #Rxr7 := (KProto.reached_xr m K c 7) $$ Hrec
  ihave #Sxr7 := (KProto.reached_xr m K (xpeer c) 7) $$ Hrec
  ihave #Sby := (KProto.reached_bar m K (ypeer c)) $$ Hrec
  ihave #Sbx := (KProto.reached_bar m K (xpeer c)) $$ Hrec
  ihave #Syr := (KProto.reached_yr m K (ypeer c)) $$ Hrec
  ihave #Qxr0 := (KProto.reached_xr m K (xpeer (xpeer c)) 0) $$ Hrec
  ihave #Qxr1 := (KProto.reached_xr m K (xpeer (xpeer c)) 1) $$ Hrec
  ihave #Qxr2 := (KProto.reached_xr m K (xpeer (xpeer c)) 2) $$ Hrec
  ihave #Qxr3 := (KProto.reached_xr m K (xpeer (xpeer c)) 3) $$ Hrec
  ihave #Qxr4 := (KProto.reached_xr m K (xpeer (xpeer c)) 4) $$ Hrec
  ihave #Qxr5 := (KProto.reached_xr m K (xpeer (xpeer c)) 5) $$ Hrec
  ihave #Qxr6 := (KProto.reached_xr m K (xpeer (xpeer c)) 6) $$ Hrec
  ihave #Qxr7 := (KProto.reached_xr m K (xpeer (xpeer c)) 7) $$ Hrec
  ihave #Qyr := (KProto.reached_yr m K (ypeer (ypeer c))) $$ Hrec
  -- every buffer through its whole view; the two half-precision buffers by their eight slots; what the handshake
  -- hands the peers restated at the peers' names for this device
  ihave Hx := (KBodyCommon.toView (F := F) c cc0_stg0_0 _) $$ Hx
  ihave Ha := (KBodyCommon.toView (F := F) c cc0_stg1_0 _) $$ Ha
  ihave Hb := (KBodyCommon.toView (F := F) c cc0_stg2_0 _) $$ Hb
  ihave Hcc := (KBodyCommon.toView (F := F) c cc0_stg3_0 _) $$ Hcc
  ihave Ho := (KBodyCommon.toView (F := F) c cc0_stg4_0 _) $$ Ho
  ihave Hh := (KBodyCommon.toView (F := F) c cc0_scratch0 _) $$ Hh
  ihave Hs := (KBodyCommon.toView (F := F) c cc0_scratch1 _) $$ Hs
  ihave Hi := (KBodyCommon.toView (F := F) c cc0_scratch2 _) $$ Hi
  ihave Hob := (KBodyCommon.toView (F := F) c cc0_scratch3 _) $$ Hob
  ihave Hib := (KBodyCommon.toView (F := F) c cc0_scratch4 _) $$ Hib
  ihave Hob := (Entails.of_eq (KBodyGeo.cut_ob (F := F) c fob)) $$ Hob
  icases Hob with ⟨Hob0, Hob1, Hob2, Hob3, Hob4, Hob5, Hob6, Hob7⟩
  ihave Hib := (Entails.of_eq (KBodyGeo.cut_ib (F := F) c fib)) $$ Hib
  icases Hib with ⟨Hib0, Hib1, Hib2, Hib3, Hib4, Hib5, Hib6, Hib7⟩
  ihave Hib0 := (KBodyCommon.toDev (F := F) (KVal.xpeer_xpeer c) KProto.ibS0 fib) $$ Hib0
  ihave Hib1 := (KBodyCommon.toDev (F := F) (KVal.xpeer_xpeer c) KProto.ibS1 fib) $$ Hib1
  ihave Hib2 := (KBodyCommon.toDev (F := F) (KVal.xpeer_xpeer c) KProto.ibS2 fib) $$ Hib2
  ihave Hib3 := (KBodyCommon.toDev (F := F) (KVal.xpeer_xpeer c) KProto.ibS3 fib) $$ Hib3
  ihave Hib4 := (KBodyCommon.toDev (F := F) (KVal.xpeer_xpeer c) KProto.ibS4 fib) $$ Hib4
  ihave Hib5 := (KBodyCommon.toDev (F := F) (KVal.xpeer_xpeer c) KProto.ibS5 fib) $$ Hib5
  ihave Hib6 := (KBodyCommon.toDev (F := F) (KVal.xpeer_xpeer c) KProto.ibS6 fib) $$ Hib6
  ihave Hib7 := (KBodyCommon.toDev (F := F) (KVal.xpeer_xpeer c) KProto.ibS7 fib) $$ Hib7
  ihave Hi := (KBodyCommon.toDevW (F := F) (KVal.ypeer_ypeer c) hiM fi) $$ Hi
  sl_unfold [cc0_body]
  sl_exec_parts (disch := first | simp only [KBodyCommon.dev3_eq', KVal.dev4_eq, KVal.dev5_eq, KVal.dev6_eq, KVal.dev7_eq, KVal.dev8_eq, KVal.dev9_eq, KVal.dev10_eq, KVal.dev11_eq] | sl_exact h159)
  -- the barrier's payloads: the x-peer's eight receive slots
  ihave Hp := (Entails.of_eq (KBodyCommon.bar_split m c)) $$ Pbar_pay1
  icases Hp with ⟨Hpy, Hpx⟩
  iclear Hpy
  ihave Hpx := (Entails.of_eq (KProto.barPayX_def (F := F) c)) $$ Hpx
  icases Hpx with ⟨⟨%gx0, Hix0⟩, ⟨%gx1, Hix1⟩, ⟨%gx2, Hix2⟩, ⟨%gx3, Hix3⟩, ⟨%gx4, Hix4⟩, ⟨%gx5, Hix5⟩, ⟨%gx6, Hix6⟩, ⟨%gx7, Hix7⟩, -⟩
  -- the copy of slot 0 to the x-peer
  have e0 : sound_odd.sl.Hob0_w1 m c fob = (obM.access KProto.sl0).write (Elt F) fob (KVal.yblk16 m c 0) Finset.univ := by
    simp only [KVal.yblk16]; rw [hv170]; rfl
  iapply (KSend.wp_send_x0 (F := F) m c (xpeer c) rfl _ fob e0 gx0 _ _) $$ [Hob0 Hix0 HO Txs0 Txr0]
  · isplitr; · iexact Ixs0
    isplitr; · iexact Jxr0
    isplitl [Hob0]; · iexact Hob0
    isplitl [Hix0]; · iexact Hix0
    isplitl [HO]; · iexact HO
    isplitl [Txs0]; · iexact Txs0
    isplitr; · iexact Rxs0
    isplitl [Txr0]; · iexact Txr0
    iexact Sxr0
  iintro ⟨Cxs0, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 1 to the x-peer
  have e1 : sound_odd.sl.Hob1_w1 m c fob = (obM.access KProto.sl1).write (Elt F) fob (KVal.yblk16 m c 1) Finset.univ := by
    simp only [KVal.yblk16]; rw [hv170]; rfl
  iapply (KSend.wp_send_x1 (F := F) m c (xpeer c) rfl _ fob e1 gx1 _ _) $$ [Hob1 Hix1 HO Txs1 Txr1]
  · isplitr; · iexact Ixs1
    isplitr; · iexact Jxr1
    isplitl [Hob1]; · iexact Hob1
    isplitl [Hix1]; · iexact Hix1
    isplitl [HO]; · iexact HO
    isplitl [Txs1]; · iexact Txs1
    isplitr; · iexact Rxs1
    isplitl [Txr1]; · iexact Txr1
    iexact Sxr1
  iintro ⟨Cxs1, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 2 to the x-peer
  have e2 : sound_odd.sl.Hob2_w1 m c fob = (obM.access KProto.sl2).write (Elt F) fob (KVal.yblk16 m c 2) Finset.univ := by
    simp only [KVal.yblk16]; rw [hv170]; rfl
  iapply (KSend.wp_send_x2 (F := F) m c (xpeer c) rfl _ fob e2 gx2 _ _) $$ [Hob2 Hix2 HO Txs2 Txr2]
  · isplitr; · iexact Ixs2
    isplitr; · iexact Jxr2
    isplitl [Hob2]; · iexact Hob2
    isplitl [Hix2]; · iexact Hix2
    isplitl [HO]; · iexact HO
    isplitl [Txs2]; · iexact Txs2
    isplitr; · iexact Rxs2
    isplitl [Txr2]; · iexact Txr2
    iexact Sxr2
  iintro ⟨Cxs2, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 3 to the x-peer
  have e3 : sound_odd.sl.Hob3_w1 m c fob = (obM.access KProto.sl3).write (Elt F) fob (KVal.yblk16 m c 3) Finset.univ := by
    simp only [KVal.yblk16]; rw [hv170]; rfl
  iapply (KSend.wp_send_x3 (F := F) m c (xpeer c) rfl _ fob e3 gx3 _ _) $$ [Hob3 Hix3 HO Txs3 Txr3]
  · isplitr; · iexact Ixs3
    isplitr; · iexact Jxr3
    isplitl [Hob3]; · iexact Hob3
    isplitl [Hix3]; · iexact Hix3
    isplitl [HO]; · iexact HO
    isplitl [Txs3]; · iexact Txs3
    isplitr; · iexact Rxs3
    isplitl [Txr3]; · iexact Txr3
    iexact Sxr3
  iintro ⟨Cxs3, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 4 to the x-peer
  have e4 : sound_odd.sl.Hob4_w1 m c fob = (obM.access KProto.sl4).write (Elt F) fob (KVal.yblk16 m c 4) Finset.univ := by
    simp only [KVal.yblk16]; rw [hv170]; rfl
  iapply (KSend.wp_send_x4 (F := F) m c (xpeer c) rfl _ fob e4 gx4 _ _) $$ [Hob4 Hix4 HO Txs4 Txr4]
  · isplitr; · iexact Ixs4
    isplitr; · iexact Jxr4
    isplitl [Hob4]; · iexact Hob4
    isplitl [Hix4]; · iexact Hix4
    isplitl [HO]; · iexact HO
    isplitl [Txs4]; · iexact Txs4
    isplitr; · iexact Rxs4
    isplitl [Txr4]; · iexact Txr4
    iexact Sxr4
  iintro ⟨Cxs4, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 5 to the x-peer
  have e5 : sound_odd.sl.Hob5_w1 m c fob = (obM.access KProto.sl5).write (Elt F) fob (KVal.yblk16 m c 5) Finset.univ := by
    simp only [KVal.yblk16]; rw [hv170]; rfl
  iapply (KSend.wp_send_x5 (F := F) m c (xpeer c) rfl _ fob e5 gx5 _ _) $$ [Hob5 Hix5 HO Txs5 Txr5]
  · isplitr; · iexact Ixs5
    isplitr; · iexact Jxr5
    isplitl [Hob5]; · iexact Hob5
    isplitl [Hix5]; · iexact Hix5
    isplitl [HO]; · iexact HO
    isplitl [Txs5]; · iexact Txs5
    isplitr; · iexact Rxs5
    isplitl [Txr5]; · iexact Txr5
    iexact Sxr5
  iintro ⟨Cxs5, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 6 to the x-peer
  have e6 : sound_odd.sl.Hob6_w1 m c fob = (obM.access KProto.sl6).write (Elt F) fob (KVal.yblk16 m c 6) Finset.univ := by
    simp only [KVal.yblk16]; rw [hv170]; rfl
  iapply (KSend.wp_send_x6 (F := F) m c (xpeer c) rfl _ fob e6 gx6 _ _) $$ [Hob6 Hix6 HO Txs6 Txr6]
  · isplitr; · iexact Ixs6
    isplitr; · iexact Jxr6
    isplitl [Hob6]; · iexact Hob6
    isplitl [Hix6]; · iexact Hix6
    isplitl [HO]; · iexact HO
    isplitl [Txs6]; · iexact Txs6
    isplitr; · iexact Rxs6
    isplitl [Txr6]; · iexact Txr6
    iexact Sxr6
  iintro ⟨Cxs6, HO⟩
  sl_exec_parts (disch := simp only [KBodyCommon.dev3_eq', KVal.dev4_eq, KVal.dev5_eq, KVal.dev6_eq, KVal.dev7_eq, KVal.dev8_eq, KVal.dev9_eq, KVal.dev10_eq, KVal.dev11_eq])
  -- the copy of slot 7 to the x-peer
  have e7 : sound_odd.sl.Hob7_w1 m c fob = (obM.access KProto.sl7).write (Elt F) fob (KVal.yblk16 m c 7) Finset.univ := by
    simp only [KVal.yblk16]; rw [hv170]; rfl
  rw [← zero_add (tallyAt ((xpeer c : Thread nD τ), SemLoc.dma KProto.xrS7) () KProto.NX)]
  iapply (KSend.wp_send_x7 (F := F) m c (xpeer c) rfl _ fob e7 gx7 0 _) $$ [Hob7 Hix7 HO Txs7 Txr7]
  · isplitr; · iexact Ixs7
    isplitr; · iexact Jxr7
    isplitl [Hob7]; · iexact Hob7
    isplitl [Hix7]; · iexact Hix7
    isplitl [HO]; · iexact HO
    isplitl [Txs7]; · iexact Txs7
    isplitr; · iexact Rxs7
    isplitl [Txr7]; · iexact Txr7
    iexact Sxr7
  iintro ⟨Cxs7, HO⟩
  sl_exec_parts (disch := first | simp only [KBodyCommon.dev3_eq', KVal.dev4_eq, KVal.dev5_eq, KVal.dev6_eq, KVal.dev7_eq, KVal.dev8_eq, KVal.dev9_eq, KVal.dev10_eq, KVal.dev11_eq] | exact (fun h => absurd (h501.symm.trans h) (by decide)))
  -- the eight received slots are the receive buffer whole
  ihave Hib := (KBodyJoin.join_ib_val (F := F) m c fib) $$ [Pxr0_pay1 Pxr1_pay1 Pxr2_pay1 Pxr3_pay1 Pxr4_pay1 Pxr5_pay1 Pxr6_pay1 Pxr7_pay1]
  · isplitl [Pxr0_pay1]; · iexists _; iexact Pxr0_pay1
    isplitl [Pxr1_pay1]; · iexists _; iexact Pxr1_pay1
    isplitl [Pxr2_pay1]; · iexists _; iexact Pxr2_pay1
    isplitl [Pxr3_pay1]; · iexists _; iexact Pxr3_pay1
    isplitl [Pxr4_pay1]; · iexists _; iexact Pxr4_pay1
    isplitl [Pxr5_pay1]; · iexists _; iexact Pxr5_pay1
    isplitl [Pxr6_pay1]; · iexists _; iexact Pxr6_pay1
    iexists _; iexact Pxr7_pay1
  sl_exec_parts
  -- the value of the output staging buffer: nine stores that tile it
  rw [KBodyCommon.out_writes_eq' (F := F) m c fo]
  rotate_left
  · have ev : sound_odd.sl.v630 m c = KVal.obufV m (xpeer c) := KBodyCommon.ibuf_read m c
    unfold KVal.outL; simp only [KVal.yblk]; rw [hv170, ev]; rfl
  rw [wp_ret]
  imod (KClose.close_odd (F := F) m K c hc) $$ [Pys Pyr Pxs0 Pxs1 Pxs2 Pxs3 Pxs4 Pxs5 Pxs6 Pxs7 Pxr0 Pxr1 Pxr2 Pxr3 Pxr4 Pxr5 Pxr6 Pxr7] with Hz
  · isplitr; · iexact Hrec
    isplitl [Pys]; · iexact Pys
    isplitl [Pyr]; · iexact Pyr
    isplitl [Pxs0]; · iexact Pxs0
    isplitl [Pxs1]; · iexact Pxs1
    isplitl [Pxs2]; · iexact Pxs2
    isplitl [Pxs3]; · iexact Pxs3
    isplitl [Pxs4]; · iexact Pxs4
    isplitl [Pxs5]; · iexact Pxs5
    isplitl [Pxs6]; · iexact Pxs6
    isplitl [Pxs7]; · iexact Pxs7
    isplitl [Pxr0]; · iexact Pxr0
    isplitl [Pxr1]; · iexact Pxr1
    isplitl [Pxr2]; · iexact Pxr2
    isplitl [Pxr3]; · iexact Pxr3
    isplitl [Pxr4]; · iexact Pxr4
    isplitl [Pxr5]; · iexact Pxr5
    isplitl [Pxr6]; · iexact Pxr6
    iexact Pxr7
  imodintro
  unfold KProto.bodyPost KProto.stagedIn KProto.scratch
  isplitl [HO]; · iexists _; iexact HO
  isplitl [Hx Ha Hb Hcc]
  · isplitl [Hx]; · iexact Hx
    isplitl [Ha]; · iexact Ha
    isplitl [Hb]; · iexact Hb
    iexact Hcc
  isplitl [Ho]; · iexact Ho
  isplitr [Hz]
  · isplitl [Hh]; · iexists _; iexact Hh
    isplitl [Hs]; · iexists _; iexact Hs
    isplitl [Pyr_pay1]; · iexists _; iexact Pyr_pay1
    isplitr [Hib]
    · iapply (KBodyGeo.join_ob (F := F) c fob)
      isplitl [Pxs0_pay1]; · iexists _; iexact Pxs0_pay1
      isplitl [Pxs1_pay1]; · iexists _; iexact Pxs1_pay1
      isplitl [Pxs2_pay1]; · iexists _; iexact Pxs2_pay1
      isplitl [Pxs3_pay1]; · iexists _; iexact Pxs3_pay1
      isplitl [Pxs4_pay1]; · iexists _; iexact Pxs4_pay1
      isplitl [Pxs5_pay1]; · iexists _; iexact Pxs5_pay1
      isplitl [Pxs6_pay1]; · iexists _; iexact Pxs6_pay1
      iexists _; iexact Pxs7_pay1
    iexists _; iexact Hib
  iexact Hz

end Cert.Kernel.KBodyOdd
end
-- ==== Proof.KBodyBits.lean ====
/-
  The body lemma: on every device, under any names of the cells' invariants, the kernel's body at the one grid
  point runs from what the launch hands the device to the staged arguments unchanged, the output staging buffer at
  its named contents, nothing owed and the device's own semaphores at zero. By cases on my = c % 2.
-/
import proofs.«900482_g7700000000000483_dist_ssm_v7x_xy2x2_y_b4_s256_d256_n16_f32_1_alg».proof.Proof.KBodyEvenBits
import proofs.«900482_g7700000000000483_dist_ssm_v7x_xy2x2_y_b4_s256_d256_n16_f32_1_alg».proof.Proof.KBodyOddBits

noncomputable section
namespace Cert.Kernel.KBody

open Cert.Kernel
open Idealize.ShloMosaic

variable {F : FTy → Type} [FloatOps F]

theorem sound_body (m : (ℓ : Loc nD τ sig) → Buf (Elt F) ℓ) : KProto.SoundBody (F := F) m := fun K c => by
  rcases Nat.mod_two_eq_zero_or_one c.val with h | h
  · exact KBodyEven.sound_even m K c h
  · exact KBodyOdd.sound_odd m K c h

/-- info: 'Cert.Kernel.KBody.sound_body' depends on axioms: [propext, Classical.choice, Quot.sound] -/
#guard_msgs in #print axioms sound_body

end Cert.Kernel.KBody
end
-- ==== Proof.RefRunLib.lean ====
/-
  Facts about a straight line of host operations that are the same for every operation of the reference: each touches only
  TensorCore buffers, writes only buffers past the arguments, and determines what it writes. A buffer before all the writes
  of a line keeps its contents through it.
-/
import Idealize.ShloMosaic.Lib.StableHlo.Run
import Idealize.ShloMosaic.Lib.Pipeline.Frame

noncomputable section

namespace Cert.ReferenceIdeal.RefRun

open Idealize.ShloMosaic Idealize.ShloMosaic.TcCoe Idealize.SL.Sem Idealize.ShloMosaic.StableHlo

variable {τ : Topo} {sig : RefSig} {Val : EltTy → Type}

/-- A buffer's index in its table, as a number. -/
def key (b : DevRef τ sig) : ℕ := b.idx.val

/-- What the run needs of one operation: its buffers are the TensorCore's, it writes no buffer before index n, and it
    determines its results. -/
def OpOk (n : ℕ) (op : HloOp τ sig Val) : Prop :=
  op.bufs ⊆ tcRefs τ sig ∧ (∀ b ∈ op.writes, n ≤ key b) ∧ op.fresh = ∅

section Builders
variable {x a b c y : Ref sig .tc}

theorem nullary_ok (v : y.ty.Contents Val) (hy) (n : ℕ) (hn : n ≤ key (Proc.devRef .tc y : DevRef τ sig)) :
    OpOk n (nullary (τ := τ) y v hy) :=
  ⟨nullary_bufs_sub .., fun d hd => by rw [nullary_writes, Finset.mem_singleton] at hd; subst hd; exact hn, rfl⟩

theorem unary_ok (f : x.ty.Contents Val → y.ty.Contents Val) (hx hy) (n : ℕ)
    (hn : n ≤ key (Proc.devRef .tc y : DevRef τ sig)) : OpOk n (unary (τ := τ) x y f hx hy) :=
  ⟨unary_bufs_sub .., fun d hd => by rw [unary_writes, Finset.mem_singleton] at hd; subst hd; exact hn, rfl⟩

theorem binary_ok (f : a.ty.Contents Val → b.ty.Contents Val → y.ty.Contents Val) (ha hb hy) (n : ℕ)
    (hn : n ≤ key (Proc.devRef .tc y : DevRef τ sig)) : OpOk n (binary (τ := τ) a b y f ha hb hy) :=
  ⟨binary_bufs_sub .., fun d hd => by rw [binary_writes, Finset.mem_singleton] at hd; subst hd; exact hn, rfl⟩

theorem ternary_ok (f : c.ty.Contents Val → a.ty.Contents Val → b.ty.Contents Val → y.ty.Contents Val) (hc ha hb hy) (n : ℕ)
    (hn : n ≤ key (Proc.devRef .tc y : DevRef τ sig)) : OpOk n (ternary (τ := τ) c a b y f hc ha hb hy) :=
  ⟨ternary_bufs_sub .., fun d hd => by rw [ternary_writes, Finset.mem_singleton] at hd; subst hd; exact hn, rfl⟩

theorem reshape_ok (he hn' hx hy) (n : ℕ) (hn : n ≤ key (Proc.devRef .tc y : DevRef τ sig)) :
    OpOk n (reshape (τ := τ) (Val := Val) x y he hn' hx hy) :=
  ⟨reshape_bufs_sub .., fun d hd => by rw [reshape_writes, Finset.mem_singleton] at hd; subst hd; exact hn, rfl⟩

end Builders

/-- A buffer before every write of the line keeps its contents through it. -/
theorem after_keep (l : List (HloOp τ sig Val)) (n : ℕ) (h : l.Forall (OpOk n)) (r : Ref sig .tc)
    (hr : key (Proc.devRef .tc r : DevRef τ sig) < n) (V : Valuation τ sig Val) :
    after l V (Proc.devRef .tc r) = V (Proc.devRef .tc r) :=
  after_of_forall_not_mem l V fun op hop hb =>
    absurd ((List.forall_iff_forall_mem.mp h op hop).2.1 _ hb) (Nat.not_le.2 hr)

theorem OpOk.mono {n m : ℕ} (hnm : m ≤ n) {op : HloOp τ sig Val} (h : OpOk n op) : OpOk m op :=
  ⟨h.1, fun b hb => le_trans hnm (h.2.1 b hb), h.2.2⟩

end Cert.ReferenceIdeal.RefRun

end
-- ==== Proof.RefValueStep.lean ====
/-
  One step of the reference's loop as a pure function of the time t, and what it computes index by index.

  The reference unrolls 512 steps; step t multiplies the state h by the decay exp A, adds x[:, t, :, None] * B[:, t, None, :],
  and writes row t of the result with the sum over the state axis of the new state times C[:, t, None, :]. The step is stated
  once over the host operations, parametric in t; its reading at an index is proved once; the iterate of the step is the
  recurrence of the specification. Nothing here depends on the printed program: only on the operations' library.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.RefValue

open Idealize.ShloMosaic Idealize.ShloMosaic.ValueIdx
open scoped BigOperators

/-! ## A scatter whose body returns the update, read at an index -/

section ScatterSet
variable {α : Type} {s si u : Shape} {w : ℕ}

/-- One step of the scatter's fold with the body that returns the update. -/
def setStep (d : ScatterDims s si u) (idx : IVec si w) (upd : u.Idx → α) (r : s.Idx → α) (n : Fin u.numel) : s.Idx → α :=
  match d.resultIdx? (u.rowMajor.symm n) idx with
  | some i => fun i' => if i' = i then (fun (_ : α) (b : α) => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (setStep d idx upd) x := rfl

/-- An index no update of the list lands on keeps its value through the fold. -/
theorem foldl_setStep_miss (d : ScatterDims s si u) (idx : IVec si w) (upd : u.Idx → α) (i' : s.Idx) :
    ∀ (l : List (Fin u.numel)) (r : s.Idx → α),
      (∀ n ∈ l, d.resultIdx? (u.rowMajor.symm n) idx ≠ some i') → l.foldl (setStep d idx upd) r i' = r i' := by
  intro l
  induction l with
  | nil => intro r _; rfl
  | cons a l ih =>
    intro r h
    rw [List.foldl_cons, ih _ (fun n hn => h n (List.mem_cons_of_mem _ hn))]
    have ha := h a List.mem_cons_self
    unfold setStep
    cases hr : d.resultIdx? (u.rowMajor.symm a) idx with
    | none => rfl
    | some i =>
      have : i' ≠ i := fun e => ha (by rw [hr, e])
      simp [this]

/-- An index exactly one update of the list lands on ends holding that update. -/
theorem foldl_setStep_hit (d : ScatterDims s si u) (idx : IVec si w) (upd : u.Idx → α) (i' : s.Idx) (n0 : Fin u.numel)
    (h0 : d.resultIdx? (u.rowMajor.symm n0) idx = some i') :
    ∀ (l : List (Fin u.numel)) (r : s.Idx → α), n0 ∈ l →
      (∀ n ∈ l, d.resultIdx? (u.rowMajor.symm n) idx = some i' → n = n0) →
      l.foldl (setStep d idx upd) r i' = upd (u.rowMajor.symm n0) := by
  intro l
  induction l with
  | nil => intro r h; cases h
  | cons a l ih =>
    intro r hmem huniq
    rw [List.foldl_cons]
    by_cases hl : n0 ∈ l
    · exact ih _ hl (fun n hn => huniq n (List.mem_cons_of_mem _ hn))
    · have ha : a = n0 := by
        rcases List.mem_cons.1 hmem with h | h
        · exact h.symm
        · exact absurd h hl
      rw [foldl_setStep_miss d idx upd i' l _ (fun n hn e => hl (by rw [← huniq n (List.mem_cons_of_mem _ hn) e]; exact hn))]
      subst ha
      unfold setStep
      rw [h0]
      simp

/-- A set-scatter read at an index that exactly one update lands on is that update. -/
theorem scatter_set_hit (d : ScatterDims s si u) (x : s.Idx → α) (idx : IVec si w) (upd : u.Idx → α) (i' : s.Idx) (j0 : u.Idx)
    (h0 : d.resultIdx? j0 idx = some i') (huniq : ∀ j, d.resultIdx? j idx = some i' → j = j0) :
    Host.scatter d (fun _ b => b) x idx upd i' = upd j0 := by
  rw [scatter_eq_foldl]
  have := foldl_setStep_hit d idx upd i' (u.rowMajor j0) (by rw [Equiv.symm_apply_apply]; exact h0)
    (List.finRange u.numel) x (List.mem_finRange _)
    (fun n _ e => by rw [← huniq _ e, Equiv.apply_symm_apply])
  rw [this, Equiv.symm_apply_apply]

/-- A set-scatter read at an index no update lands on is the operand. -/
theorem scatter_set_miss (d : ScatterDims s si u) (x : s.Idx → α) (idx : IVec si w) (upd : u.Idx → α) (i' : s.Idx)
    (h : ∀ j, d.resultIdx? j idx ≠ some i') :
    Host.scatter d (fun _ b => b) x idx upd i' = x i' := by
  rw [scatter_eq_foldl]
  exact foldl_setStep_miss d idx upd i' _ x (fun n _ => h _)

end ScatterSet

/-! ## The shapes of the program and the relations among them -/

abbrev SY : Shape := ⟨3, ![4, 512, 256]⟩
abbrev SB : Shape := ⟨3, ![4, 512, 16]⟩
abbrev SH : Shape := ⟨3, ![4, 256, 16]⟩
abbrev SA : Shape := ⟨2, ![256, 16]⟩
abbrev SA1 : Shape := ⟨3, ![1, 256, 16]⟩
abbrev SX1 : Shape := ⟨3, ![4, 1, 256]⟩
abbrev SU : Shape := ⟨2, ![4, 256]⟩
abbrev SX3 : Shape := ⟨3, ![4, 256, 1]⟩
abbrev SB1 : Shape := ⟨3, ![4, 1, 16]⟩
abbrev SBr : Shape := ⟨2, ![4, 16]⟩
abbrev S0 : Shape := ⟨0, ![]⟩
abbrev SI : Shape := ⟨1, ![1]⟩

theorem slY (t : ℕ) (ht : t < 512) : SY.Slices ![0, t, 0] SX1 :=
  ⟨rfl, fun a => by
    match a with
    | ⟨0, _⟩ => exact Nat.le_refl _
    | ⟨1, _⟩ => show t + 1 ≤ 512; omega
    | ⟨2, _⟩ => exact Nat.le_refl _⟩

theorem slB (t : ℕ) (ht : t < 512) : SB.Slices ![0, t, 0] SB1 :=
  ⟨rfl, fun a => by
    match a with
    | ⟨0, _⟩ => exact Nat.le_refl _
    | ⟨1, _⟩ => show t + 1 ≤ 512; omega
    | ⟨2, _⟩ => exact Nat.le_refl _⟩

theorem cX : SX1.ShapeCasts SU := by decide
theorem cB : SB1.ShapeCasts SBr := by decide
theorem bX1 : SU.BroadcastsInDim SX3 ![0, 1] := by decide
theorem bX2 : SX3.BroadcastsInDim SH ![0, 1, 2] := by decide
theorem bB1 : SBr.BroadcastsInDim SB1 ![0, 2] := by decide
theorem bB2 : SB1.BroadcastsInDim SH ![0, 1, 2] := by decide
theorem bA1 : SA.BroadcastsInDim SA1 ![1, 2] := by decide
theorem bA2 : SA1.BroadcastsInDim SH ![0, 1, 2] := by decide
theorem bZh : S0.BroadcastsInDim SH ![] := by decide
theorem bZy : S0.BroadcastsInDim SY ![] := by decide
theorem bI : S0.BroadcastsInDim SI ![] := by decide
theorem red : SH.ReducesTo [2] SU := by decide
theorem redR : SH.Reduces [2] SU := by decide
theorem hS0 : 0 < S0.numel := by decide

/-- The decay array as every step reads it: exp of A, with a leading unit axis. -/
def decay (A : FVec Ideal SA .f32) : FVec Ideal SA1 .f32 := broadcastInDim SA1 ![1, 2] bA1 (Host.exp A)

/-- Row t of a [4, 512, k] array spread over the state array's shape along axis 1. -/
def rowB (t : ℕ) (ht : t < 512) (B : FVec Ideal SB .f32) : FVec Ideal SH .f32 :=
  broadcastInDim SH ![0, 1, 2] bB2 (broadcastInDim SB1 ![0, 2] bB1 (shapeCast SBr (extractStridedSlice SB1 ![0, t, 0] B (slB t ht)) cB))

/-- Row t of x spread over the state array's shape along axis 2. -/
def rowX (t : ℕ) (ht : t < 512) (X : FVec Ideal SY .f32) : FVec Ideal SH .f32 :=
  broadcastInDim SH ![0, 1, 2] bX2 (broadcastInDim SX3 ![0, 1] bX1 (shapeCast SU (extractStridedSlice SX1 ![0, t, 0] X (slY t ht)) cX))

/-- One step's new state. -/
def stepH (t : ℕ) (ht : t < 512) (X : FVec Ideal SY .f32) (A1 : FVec Ideal SA1 .f32) (B : FVec Ideal SB .f32)
    (h : FVec Ideal SH .f32) : FVec Ideal SH .f32 :=
  addf (mulf h (broadcastInDim SH ![0, 1, 2] bA2 A1)) (mulf (rowX t ht X) (rowB t ht B))

theorem rowB_apply (t : ℕ) (ht : t < 512) (B : FVec Ideal SB .f32) (b : Fin 4) (d : Fin 256) (n : Fin 16) :
    rowB t ht B (ix3 b d n) = B (ix3 b ⟨t, ht⟩ n) := by
  unfold rowB
  rw [broadcastInDim_apply _ bB2 _ (ix3 b d n) (ix3 b (0 : Fin 1) n) (fun a => by
    match a with
    | ⟨0, _⟩ => rfl
    | ⟨1, _⟩ => rfl
    | ⟨2, _⟩ => rfl)]
  rw [broadcastInDim_apply _ bB1 _ (ix3 b (0 : Fin 1) n) (ix2 b n) (fun a => by
    match a with
    | ⟨0, _⟩ => rfl
    | ⟨1, _⟩ => rfl)]
  rw [shapeCast_apply _ cB (ix2 b n) (ix3 b (0 : Fin 1) n) (by
    rw [Shape.rowMajor_val_three, Shape.rowMajor_val_two]; simp)]
  exact slice3_axis1_apply t B (slB t ht) b 0 n ⟨t, ht⟩ (by simp)

theorem rowX_apply (t : ℕ) (ht : t < 512) (X : FVec Ideal SY .f32) (b : Fin 4) (d : Fin 256) (n : Fin 16) :
    rowX t ht X (ix3 b d n) = X (ix3 b ⟨t, ht⟩ d) := by
  unfold rowX
  rw [broadcastInDim_apply _ bX2 _ (ix3 b d n) (ix3 b d (0 : Fin 1)) (fun a => by
    match a with
    | ⟨0, _⟩ => rfl
    | ⟨1, _⟩ => rfl
    | ⟨2, _⟩ => rfl)]
  rw [broadcastInDim_apply _ bX1 _ (ix3 b d (0 : Fin 1)) (ix2 b d) (fun a => by
    match a with
    | ⟨0, _⟩ => rfl
    | ⟨1, _⟩ => rfl)]
  rw [shapeCast_apply _ cX (ix2 b d) (ix3 b (0 : Fin 1) d) (by
    rw [Shape.rowMajor_val_three, Shape.rowMajor_val_two]; simp)]
  exact slice3_axis1_apply t X (slY t ht) b 0 d ⟨t, ht⟩ (by simp)

theorem decay_apply (A : FVec Ideal SA .f32) (b : Fin 4) (d : Fin 256) (n : Fin 16) :
    broadcastInDim SH ![0, 1, 2] bA2 (decay A) (ix3 b d n) = Ideal.exp (A (ix2 d n)) := by
  unfold decay
  rw [broadcastInDim_apply _ bA2 _ (ix3 b d n) (ix3 (0 : Fin 1) d n) (fun a => by
    match a with
    | ⟨0, _⟩ => rfl
    | ⟨1, _⟩ => rfl
    | ⟨2, _⟩ => rfl)]
  rw [broadcastInDim_apply _ bA1 _ (ix3 (0 : Fin 1) d n) (ix2 d n) (fun a => by
    match a with
    | ⟨0, _⟩ => rfl
    | ⟨1, _⟩ => rfl)]
  rfl

theorem stepH_apply (t : ℕ) (ht : t < 512) (X : FVec Ideal SY .f32) (A : FVec Ideal SA .f32) (B : FVec Ideal SB .f32)
    (h : FVec Ideal SH .f32) (b : Fin 4) (d : Fin 256) (n : Fin 16) :
    stepH t ht X (decay A) B h (ix3 b d n)
      = h (ix3 b d n) * Ideal.exp (A (ix2 d n)) + X (ix3 b ⟨t, ht⟩ d) * B (ix3 b ⟨t, ht⟩ n) := by
  unfold stepH
  rw [addf_apply, mulf_apply, mulf_apply, decay_apply, rowX_apply, rowB_apply]

/-! ## The result array's row t overwritten -/

theorem wfS : ScatterDims.WF SY SI SU [0, 1] [1] [1] 0 := by decide

def sd : ScatterDims SY SI SU where
  updateWindowDims := [0, 1]
  insertedWindowDims := [1]
  scatterDimsToOperandDims := [1]
  indexVectorDim := 0
  wf := wfS

/-- One step's new result array: row t overwritten with the sum over the state axis of the new state times row t of C. -/
def stepY (t : ℕ) (ht : t < 512) (C : FVec Ideal SB .f32) (h' : FVec Ideal SH .f32) (y : FVec Ideal SY .f32) :
    FVec Ideal SY .f32 :=
  Host.scatter sd (fun _ b => b) y (broadcastInDim SI ![] bI (constantI S0 32 (BitVec.ofNat 32 t)))
    (Host.reduceAdd (mulf h' (rowB t ht C)) (constant S0 .f32 0x00000000#32) red hS0)

theorem lift_ix (b : Fin 4) (d : Fin 256) (k : Fin 16) : redR.lift (ix2 b d) k = ix3 b d k := by
  funext a
  match a with
  | ⟨0, _⟩ => exact Fin.ext rfl
  | ⟨1, _⟩ => exact Fin.ext rfl
  | ⟨2, _⟩ => exact Fin.ext rfl

theorem rowSum_apply (t : ℕ) (ht : t < 512) (C : FVec Ideal SB .f32) (h' : FVec Ideal SH .f32) (b : Fin 4) (d : Fin 256) :
    Host.reduceAdd (mulf h' (rowB t ht C)) (constant S0 .f32 0x00000000#32) red hS0 (ix2 b d)
      = ∑ n : Fin 16, h' (ix3 b d n) * C (ix3 b ⟨t, ht⟩ n) := by
  rw [hostReduceAdd_apply, Ideal.hostReduceAdd_single red redR, constant_apply, Ideal.ofBits_zero_f32, zero_add]
  show ∑ k : Fin 16, _ = _
  refine Finset.sum_congr rfl fun k _ => ?_
  rw [lift_ix, mulf_apply, rowB_apply]

theorem start_sd (w : ℕ) (j : SU.Idx) (idx : IVec SI w) (a : Fin 3) :
    sd.start j idx a = if a = 1 then (idx (ix1 0)).toInt else 0 := by
  unfold ScatterDims.start
  fin_cases a
  · simp [sd]
  · simp [sd]
    congr 2
    funext b
    have hb : b = 0 := Subsingleton.elim _ _
    subst hb
    apply Fin.ext
    simp [ScatterDims.siIdx]
  · simp [sd]

theorem window_sd (j : SU.Idx) (a : Fin 3) :
    sd.window j a = if a = 0 then (j 0).val else if a = 2 then (j 1).val else 0 := by
  unfold ScatterDims.window
  fin_cases a
  · simp [sd, ScatterDims.sKept, Shape.kept]; rfl
  · simp [sd, ScatterDims.sKept, Shape.kept]
  · simp [sd, ScatterDims.sKept, Shape.kept]; rfl

/-- With the one scatter index t, update (b, d) lands on (b, t, d). -/
theorem resultIdx_sd (t : ℕ) (ht : t < 512) (idx : IVec SI 32) (hidx : idx (ix1 0) = BitVec.ofNat 32 t)
    (b : Fin 4) (dd : Fin 256) :
    sd.resultIdx? (ix2 b dd) idx = some (ix3 b ⟨t, ht⟩ dd) := by
  have hti : (BitVec.ofNat 32 t).toInt = (t : Int) := by
    have h1 : (BitVec.ofNat 32 t).toNat = t := by rw [BitVec.toNat_ofNat]; omega
    rw [BitVec.toInt_eq_toNat_of_lt (by rw [h1]; omega), h1]
  have h : ∀ a, 0 ≤ sd.start (ix2 b dd) idx a + sd.window (ix2 b dd) a ∧
      sd.start (ix2 b dd) idx a + sd.window (ix2 b dd) a < SY.size a := by
    intro a
    rw [start_sd, window_sd, hidx, hti]
    fin_cases a
    · simp
    · simp; exact ht
    · simp
  unfold ScatterDims.resultIdx?
  rw [dif_pos h]
  congr 1
  funext a
  apply Fin.ext
  show (sd.start (ix2 b dd) idx a + sd.window (ix2 b dd) a).toNat = _
  rw [start_sd, window_sd, hidx, hti]
  fin_cases a <;> simp

theorem idx_apply (t : ℕ) : broadcastInDim SI ![] bI (constantI S0 32 (BitVec.ofNat 32 t)) (ix1 0) = BitVec.ofNat 32 t := by
  rw [broadcastInDim_scalar_apply, constantI_apply]

/-- Row t of the new result array is the sum over the state axis. -/
theorem stepY_hit (t : ℕ) (ht : t < 512) (C : FVec Ideal SB .f32) (h' : FVec Ideal SH .f32) (y : FVec Ideal SY .f32)
    (b : Fin 4) (d : Fin 256) :
    stepY t ht C h' y (ix3 b ⟨t, ht⟩ d) = ∑ n : Fin 16, h' (ix3 b d n) * C (ix3 b ⟨t, ht⟩ n) := by
  unfold stepY
  rw [scatter_set_hit sd y _ _ (ix3 b ⟨t, ht⟩ d) (ix2 b d) (resultIdx_sd t ht _ (idx_apply t) b d) (fun j hj => by
    obtain ⟨a, c, rfl⟩ : ∃ a c, j = ix2 a c := ⟨j 0, j 1, @eq_ix2 4 256 j⟩
    rw [resultIdx_sd t ht _ (idx_apply t)] at hj
    have e := Option.some.inj hj
    have e0 : a = b := congrFun e 0
    have e2 : c = d := congrFun e 2
    rw [e0, e2])]
  exact rowSum_apply t ht C h' b d

/-- The other rows keep their values. -/
theorem stepY_miss (t : ℕ) (ht : t < 512) (C : FVec Ideal SB .f32) (h' : FVec Ideal SH .f32) (y : FVec Ideal SY .f32)
    (b : Fin 4) (s : Fin 512) (d : Fin 256) (hs : s.val ≠ t) :
    stepY t ht C h' y (ix3 b s d) = y (ix3 b s d) := by
  unfold stepY
  refine scatter_set_miss sd y _ _ (ix3 b s d) (fun j hj => ?_)
  obtain ⟨a, c, rfl⟩ : ∃ a c, j = ix2 a c := ⟨j 0, j 1, @eq_ix2 4 256 j⟩
  rw [resultIdx_sd t ht _ (idx_apply t)] at hj
  have e := Option.some.inj hj
  have e1 : (⟨t, ht⟩ : Fin 512) = s := congrFun e 1
  exact hs (by rw [← e1])

/-! ## What the loop starts from -/

/-- The zero state the loop starts from. -/
def h0 : FVec Ideal SH .f32 := broadcastInDim SH ![] bZh (constant S0 .f32 0x00000000#32)
/-- The zero result array the loop starts from. -/
def y0 : FVec Ideal SY .f32 := broadcastInDim SY ![] bZy (constant S0 .f32 0x00000000#32)

theorem h0_apply (i : SH.Idx) : h0 i = 0 := by
  unfold h0; rw [broadcastInDim_scalar_apply, constant_apply, Ideal.ofBits_zero_f32]
theorem y0_apply (i : SY.Idx) : y0 i = 0 := by
  unfold y0; rw [broadcastInDim_scalar_apply, constant_apply, Ideal.ofBits_zero_f32]

end Cert.ReferenceIdeal.RefValue

end
-- ==== Proof.RefTableStep00.lean ====
/-
  Steps 0 … 15 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- The six operations before the loop: the zero state, the zero result array, exp A with a unit axis in front. -/
abbrev preOps : List (HloOp τ sig (Elt F)) :=
  [ nullary main_cst (constant S_ .f32 0x00000000#32),
    unary main_cst main_v0 (broadcastInDim S4x256x16 ![] bcast_S_S4x256x16 : (⟨S_, .f32⟩ : BufTy).Contents (Elt F) → (⟨S4x256x16, .f32⟩ : BufTy).Contents (Elt F)),
    nullary main_cst_0 (constant S_ .f32 0x00000000#32),
    unary main_cst_0 main_v1 (broadcastInDim S4x512x256 ![] bcast_S_S4x512x256 : (⟨S_, .f32⟩ : BufTy).Contents (Elt F) → (⟨S4x512x256, .f32⟩ : BufTy).Contents (Elt F)),
    unary main_arg1 main_v2 (Host.exp : (⟨S256x16, .f32⟩ : BufTy).Contents (Elt F) → (⟨S256x16, .f32⟩ : BufTy).Contents (Elt F)),
    unary main_v2 main_v3 (broadcastInDim S1x256x16 ![1, 2] bcast_S256x16_S1x256x16_1_2 : (⟨S256x16, .f32⟩ : BufTy).Contents (Elt F) → (⟨S1x256x16, .f32⟩ : BufTy).Contents (Elt F)) ]
theorem preOps_ok : (preOps : List (HloOp τ sig (Elt F))).Forall (OpOk 4) :=
  ⟨nullary_ok (n := 4) (hn := by decide +kernel) .., unary_ok (n := 4) (hn := by decide +kernel) .., nullary_ok (n := 4) (hn := by decide +kernel) .., unary_ok (n := 4) (hn := by decide +kernel) .., unary_ok (n := 4) (hn := by decide +kernel) .., unary_ok (n := 4) (hn := by decide +kernel) ..⟩
/-- Step 0 of the loop: operations 7 … 28 of the program. -/
abbrev stepOps0 : List (HloOp τ sig (Elt F)) :=
  [ unary main_v3 main_v4 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v0 main_v4 main_v5 (mulf : (⟨S4x256x16, .f32⟩ : BufTy).Contents (Elt F) → (⟨S4x256x16, .f32⟩ : BufTy).Contents (Elt F) → (⟨S4x256x16, .f32⟩ : BufTy).Contents (Elt F)),
    unary main_arg0 main_v6 ((extractStridedSlice S4x1x256 ![0, 0, 0] · slices_S4x512x256_S4x1x256_0_0_0) : (⟨S4x512x256, .f32⟩ : BufTy).Contents (Elt F) → (⟨S4x1x256, .f32⟩ : BufTy).Contents (Elt F)),
    reshape main_v6 main_v7 rfl shapeCasts_S4x1x256_S4x256,
    unary main_v7 main_v8 (broadcastInDim S4x256x1 ![0, 1] bcast_S4x256_S4x256x1_0_1 : (⟨S4x256, .f32⟩ : BufTy).Contents (Elt F) → (⟨S4x256x1, .f32⟩ : BufTy).Contents (Elt F)),
    unary main_arg2 main_v9 ((extractStridedSlice S4x1x16 ![0, 0, 0] · slices_S4x512x16_S4x1x16_0_0_0) : (⟨S4x512x16, .f32⟩ : BufTy).Contents (Elt F) → (⟨S4x1x16, .f32⟩ : BufTy).Contents (Elt F)),
    reshape main_v9 main_v10 rfl shapeCasts_S4x1x16_S4x16,
    unary main_v10 main_v11 (broadcastInDim S4x1x16 ![0, 2] bcast_S4x16_S4x1x16_0_2 : (⟨S4x16, .f32⟩ : BufTy).Contents (Elt F) → (⟨S4x1x16, .f32⟩ : BufTy).Contents (Elt F)),
    unary main_v8 main_v12 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v11 main_v13 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v12 main_v13 main_v14 (mulf : (⟨S4x256x16, .f32⟩ : BufTy).Contents (Elt F) → (⟨S4x256x16, .f32⟩ : BufTy).Contents (Elt F) → (⟨S4x256x16, .f32⟩ : BufTy).Contents (Elt F)),
    binary main_v5 main_v14 main_v15 (addf : (⟨S4x256x16, .f32⟩ : BufTy).Contents (Elt F) → (⟨S4x256x16, .f32⟩ : BufTy).Contents (Elt F) → (⟨S4x256x16, .f32⟩ : BufTy).Contents (Elt F)),
    unary main_arg3 main_v16 ((extractStridedSlice S4x1x16 ![0, 0, 0] · slices_S4x512x16_S4x1x16_0_0_0) : (⟨S4x512x16, .f32⟩ : BufTy).Contents (Elt F) → (⟨S4x1x16, .f32⟩ : BufTy).Contents (Elt F)),
    reshape main_v16 main_v17 rfl shapeCasts_S4x1x16_S4x16,
    unary main_v17 main_v18 (broadcastInDim S4x1x16 ![0, 2] bcast_S4x16_S4x1x16_0_2 : (⟨S4x16, .f32⟩ : BufTy).Contents (Elt F) → (⟨S4x1x16, .f32⟩ : BufTy).Contents (Elt F)),
    unary main_v18 main_v19 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v15 main_v19 main_v20 (mulf : (⟨S4x256x16, .f32⟩ : BufTy).Contents (Elt F) → (⟨S4x256x16, .f32⟩ : BufTy).Contents (Elt F) → (⟨S4x256x16, .f32⟩ : BufTy).Contents (Elt F)),
    nullary main_cst_1 (constant S_ .f32 0x00000000#32),
    binary main_v20 main_cst_1 main_v21 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c (constantI S_ 32 0#32),
    unary main_c main_v22 (broadcastInDim S1 ![] bcast_S_S1 : (⟨S_, .i32⟩ : BufTy).Contents (Elt F) → (⟨S1, .i32⟩ : BufTy).Contents (Elt F)),
    ternary main_v1 main_v22 main_v21 main_v23 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps0_ok : (stepOps0 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step0_val (V : Valuation τ sig (Elt Ideal)) :
    after (stepOps0 (F := Ideal)) V (no_index (Proc.devRef .tc main_v15)) = stepH 0 (by decide) (V (Proc.devRef .tc main_arg0)) (V (Proc.devRef .tc main_v3)) (V (Proc.devRef .tc main_arg2)) (V (Proc.devRef .tc main_v0))
    ∧ after (stepOps0 (F := Ideal)) V (no_index (Proc.devRef .tc main_v23)) = stepY 0 (by decide) (V (Proc.devRef .tc main_arg3)) (stepH 0 (by decide) (V (Proc.devRef .tc main_arg0)) (V (Proc.devRef .tc main_v3)) (V (Proc.devRef .tc main_arg2)) (V (Proc.devRef .tc main_v0))) (V (Proc.devRef .tc main_v1)) := by
  simp only [stepOps0]
  after_results_simp
  first | exact ⟨rfl, rfl⟩ | fail "value"
/-- Step 1 of the loop: operations 29 … 50 of the program. -/
abbrev stepOps1 : List (HloOp τ sig (Elt F)) :=
  [ unary main_v3 main_v24 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v15 main_v24 main_v25 (mulf : (⟨S4x256x16, .f32⟩ : BufTy).Contents (Elt F) → (⟨S4x256x16, .f32⟩ : BufTy).Contents (Elt F) → (⟨S4x256x16, .f32⟩ : BufTy).Contents (Elt F)),
    unary main_arg0 main_v26 ((extractStridedSlice S4x1x256 ![0, 1, 0] · slices_S4x512x256_S4x1x256_0_1_0) : (⟨S4x512x256, .f32⟩ : BufTy).Contents (Elt F) → (⟨S4x1x256, .f32⟩ : BufTy).Contents (Elt F)),
    reshape main_v26 main_v27 rfl shapeCasts_S4x1x256_S4x256,
    unary main_v27 main_v28 (broadcastInDim S4x256x1 ![0, 1] bcast_S4x256_S4x256x1_0_1 : (⟨S4x256, .f32⟩ : BufTy).Contents (Elt F) → (⟨S4x256x1, .f32⟩ : BufTy).Contents (Elt F)),
    unary main_arg2 main_v29 ((extractStridedSlice S4x1x16 ![0, 1, 0] · slices_S4x512x16_S4x1x16_0_1_0) : (⟨S4x512x16, .f32⟩ : BufTy).Contents (Elt F) → (⟨S4x1x16, .f32⟩ : BufTy).Contents (Elt F)),
    reshape main_v29 main_v30 rfl shapeCasts_S4x1x16_S4x16,
    unary main_v30 main_v31 (broadcastInDim S4x1x16 ![0, 2] bcast_S4x16_S4x1x16_0_2 : (⟨S4x16, .f32⟩ : BufTy).Contents (Elt F) → (⟨S4x1x16, .f32⟩ : BufTy).Contents (Elt F)),
    unary main_v28 main_v32 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v31 main_v33 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v32 main_v33 main_v34 (mulf : (⟨S4x256x16, .f32⟩ : BufTy).Contents (Elt F) → (⟨S4x256x16, .f32⟩ : BufTy).Contents (Elt F) → (⟨S4x256x16, .f32⟩ : BufTy).Contents (Elt F)),
    binary main_v25 main_v34 main_v35 (addf : (⟨S4x256x16, .f32⟩ : BufTy).Contents (Elt F) → (⟨S4x256x16, .f32⟩ : BufTy).Contents (Elt F) → (⟨S4x256x16, .f32⟩ : BufTy).Contents (Elt F)),
    unary main_arg3 main_v36 ((extractStridedSlice S4x1x16 ![0, 1, 0] · slices_S4x512x16_S4x1x16_0_1_0) : (⟨S4x512x16, .f32⟩ : BufTy).Contents (Elt F) → (⟨S4x1x16, .f32⟩ : BufTy).Contents (Elt F)),
    reshape main_v36 main_v37 rfl shapeCasts_S4x1x16_S4x16,
    unary main_v37 main_v38 (broadcastInDim S4x1x16 ![0, 2] bcast_S4x16_S4x1x16_0_2 : (⟨S4x16, .f32⟩ : BufTy).Contents (Elt F) → (⟨S4x1x16, .f32⟩ : BufTy).Contents (Elt F)),
    unary main_v38 main_v39 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v35 main_v39 main_v40 (mulf : (⟨S4x256x16, .f32⟩ : BufTy).Contents (Elt F) → (⟨S4x256x16, .f32⟩ : BufTy).Contents (Elt F) → (⟨S4x256x16, .f32⟩ : BufTy).Contents (Elt F)),
    nullary main_cst_2 (constant S_ .f32 0x00000000#32),
    binary main_v40 main_cst_2 main_v41 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_3 (constantI S_ 32 1#32),
    unary main_c_3 main_v42 (broadcastInDim S1 ![] bcast_S_S1 : (⟨S_, .i32⟩ : BufTy).Contents (Elt F) → (⟨S1, .i32⟩ : BufTy).Contents (Elt F)),
    ternary main_v23 main_v42 main_v41 main_v43 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps1_ok : (stepOps1 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step1_val (V : Valuation τ sig (Elt Ideal)) :
    after (stepOps1 (F := Ideal)) V (no_index (Proc.devRef .tc main_v35)) = stepH 1 (by decide) (V (Proc.devRef .tc main_arg0)) (V (Proc.devRef .tc main_v3)) (V (Proc.devRef .tc main_arg2)) (V (Proc.devRef .tc main_v15))
    ∧ after (stepOps1 (F := Ideal)) V (no_index (Proc.devRef .tc main_v43)) = stepY 1 (by decide) (V (Proc.devRef .tc main_arg3)) (stepH 1 (by decide) (V (Proc.devRef .tc main_arg0)) (V (Proc.devRef .tc main_v3)) (V (Proc.devRef .tc main_arg2)) (V (Proc.devRef .tc main_v15))) (V (Proc.devRef .tc main_v23)) := by
  simp only [stepOps1]
  after_results_simp
  first | exact ⟨rfl, rfl⟩ | fail "value"
/-- Step 2 of the loop: operations 51 … 72 of the program. -/
abbrev stepOps2 : List (HloOp τ sig (Elt F)) :=
  [ unary main_v3 main_v44 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v35 main_v44 main_v45 (mulf : (⟨S4x256x16, .f32⟩ : BufTy).Contents (Elt F) → (⟨S4x256x16, .f32⟩ : BufTy).Contents (Elt F) → (⟨S4x256x16, .f32⟩ : BufTy).Contents (Elt F)),
    unary main_arg0 main_v46 ((extractStridedSlice S4x1x256 ![0, 2, 0] · slices_S4x512x256_S4x1x256_0_2_0) : (⟨S4x512x256, .f32⟩ : BufTy).Contents (Elt F) → (⟨S4x1x256, .f32⟩ : BufTy).Contents (Elt F)),
    reshape main_v46 main_v47 rfl shapeCasts_S4x1x256_S4x256,
    unary main_v47 main_v48 (broadcastInDim S4x256x1 ![0, 1] bcast_S4x256_S4x256x1_0_1 : (⟨S4x256, .f32⟩ : BufTy).Contents (Elt F) → (⟨S4x256x1, .f32⟩ : BufTy).Contents (Elt F)),
    unary main_arg2 main_v49 ((extractStridedSlice S4x1x16 ![0, 2, 0] · slices_S4x512x16_S4x1x16_0_2_0) : (⟨S4x512x16, .f32⟩ : BufTy).Contents (Elt F) → (⟨S4x1x16, .f32⟩ : BufTy).Contents (Elt F)),
    reshape main_v49 main_v50 rfl shapeCasts_S4x1x16_S4x16,
    unary main_v50 main_v51 (broadcastInDim S4x1x16 ![0, 2] bcast_S4x16_S4x1x16_0_2 : (⟨S4x16, .f32⟩ : BufTy).Contents (Elt F) → (⟨S4x1x16, .f32⟩ : BufTy).Contents (Elt F)),
    unary main_v48 main_v52 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v51 main_v53 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v52 main_v53 main_v54 (mulf : (⟨S4x256x16, .f32⟩ : BufTy).Contents (Elt F) → (⟨S4x256x16, .f32⟩ : BufTy).Contents (Elt F) → (⟨S4x256x16, .f32⟩ : BufTy).Contents (Elt F)),
    binary main_v45 main_v54 main_v55 (addf : (⟨S4x256x16, .f32⟩ : BufTy).Contents (Elt F) → (⟨S4x256x16, .f32⟩ : BufTy).Contents (Elt F) → (⟨S4x256x16, .f32⟩ : BufTy).Contents (Elt F)),
    unary main_arg3 main_v56 ((extractStridedSlice S4x1x16 ![0, 2, 0] · slices_S4x512x16_S4x1x16_0_2_0) : (⟨S4x512x16, .f32⟩ : BufTy).Contents (Elt F) → (⟨S4x1x16, .f32⟩ : BufTy).Contents (Elt F)),
    reshape main_v56 main_v57 rfl shapeCasts_S4x1x16_S4x16,
    unary main_v57 main_v58 (broadcastInDim S4x1x16 ![0, 2] bcast_S4x16_S4x1x16_0_2 : (⟨S4x16, .f32⟩ : BufTy).Contents (Elt F) → (⟨S4x1x16, .f32⟩ : BufTy).Contents (Elt F)),
    unary main_v58 main_v59 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v55 main_v59 main_v60 (mulf : (⟨S4x256x16, .f32⟩ : BufTy).Contents (Elt F) → (⟨S4x256x16, .f32⟩ : BufTy).Contents (Elt F) → (⟨S4x256x16, .f32⟩ : BufTy).Contents (Elt F)),
    nullary main_cst_4 (constant S_ .f32 0x00000000#32),
    binary main_v60 main_cst_4 main_v61 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_5 (constantI S_ 32 2#32),
    unary main_c_5 main_v62 (broadcastInDim S1 ![] bcast_S_S1 : (⟨S_, .i32⟩ : BufTy).Contents (Elt F) → (⟨S1, .i32⟩ : BufTy).Contents (Elt F)),
    ternary main_v43 main_v62 main_v61 main_v63 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps2_ok : (stepOps2 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step2_val (V : Valuation τ sig (Elt Ideal)) :
    after (stepOps2 (F := Ideal)) V (no_index (Proc.devRef .tc main_v55)) = stepH 2 (by decide) (V (Proc.devRef .tc main_arg0)) (V (Proc.devRef .tc main_v3)) (V (Proc.devRef .tc main_arg2)) (V (Proc.devRef .tc main_v35))
    ∧ after (stepOps2 (F := Ideal)) V (no_index (Proc.devRef .tc main_v63)) = stepY 2 (by decide) (V (Proc.devRef .tc main_arg3)) (stepH 2 (by decide) (V (Proc.devRef .tc main_arg0)) (V (Proc.devRef .tc main_v3)) (V (Proc.devRef .tc main_arg2)) (V (Proc.devRef .tc main_v35))) (V (Proc.devRef .tc main_v43)) := by
  simp only [stepOps2]
  after_results_simp
  first | exact ⟨rfl, rfl⟩ | fail "value"
/-- Step 3 of the loop: operations 73 … 94 of the program. -/
abbrev stepOps3 : List (HloOp τ sig (Elt F)) :=
  [ unary main_v3 main_v64 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v55 main_v64 main_v65 (mulf : (⟨S4x256x16, .f32⟩ : BufTy).Contents (Elt F) → (⟨S4x256x16, .f32⟩ : BufTy).Contents (Elt F) → (⟨S4x256x16, .f32⟩ : BufTy).Contents (Elt F)),
    unary main_arg0 main_v66 ((extractStridedSlice S4x1x256 ![0, 3, 0] · slices_S4x512x256_S4x1x256_0_3_0) : (⟨S4x512x256, .f32⟩ : BufTy).Contents (Elt F) → (⟨S4x1x256, .f32⟩ : BufTy).Contents (Elt F)),
    reshape main_v66 main_v67 rfl shapeCasts_S4x1x256_S4x256,
    unary main_v67 main_v68 (broadcastInDim S4x256x1 ![0, 1] bcast_S4x256_S4x256x1_0_1 : (⟨S4x256, .f32⟩ : BufTy).Contents (Elt F) → (⟨S4x256x1, .f32⟩ : BufTy).Contents (Elt F)),
    unary main_arg2 main_v69 ((extractStridedSlice S4x1x16 ![0, 3, 0] · slices_S4x512x16_S4x1x16_0_3_0) : (⟨S4x512x16, .f32⟩ : BufTy).Contents (Elt F) → (⟨S4x1x16, .f32⟩ : BufTy).Contents (Elt F)),
    reshape main_v69 main_v70 rfl shapeCasts_S4x1x16_S4x16,
    unary main_v70 main_v71 (broadcastInDim S4x1x16 ![0, 2] bcast_S4x16_S4x1x16_0_2 : (⟨S4x16, .f32⟩ : BufTy).Contents (Elt F) → (⟨S4x1x16, .f32⟩ : BufTy).Contents (Elt F)),
    unary main_v68 main_v72 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v71 main_v73 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v72 main_v73 main_v74 (mulf : (⟨S4x256x16, .f32⟩ : BufTy).Contents (Elt F) → (⟨S4x256x16, .f32⟩ : BufTy).Contents (Elt F) → (⟨S4x256x16, .f32⟩ : BufTy).Contents (Elt F)),
    binary main_v65 main_v74 main_v75 (addf : (⟨S4x256x16, .f32⟩ : BufTy).Contents (Elt F) → (⟨S4x256x16, .f32⟩ : BufTy).Contents (Elt F) → (⟨S4x256x16, .f32⟩ : BufTy).Contents (Elt F)),
    unary main_arg3 main_v76 ((extractStridedSlice S4x1x16 ![0, 3, 0] · slices_S4x512x16_S4x1x16_0_3_0) : (⟨S4x512x16, .f32⟩ : BufTy).Contents (Elt F) → (⟨S4x1x16, .f32⟩ : BufTy).Contents (Elt F)),
    reshape main_v76 main_v77 rfl shapeCasts_S4x1x16_S4x16,
    unary main_v77 main_v78 (broadcastInDim S4x1x16 ![0, 2] bcast_S4x16_S4x1x16_0_2 : (⟨S4x16, .f32⟩ : BufTy).Contents (Elt F) → (⟨S4x1x16, .f32⟩ : BufTy).Contents (Elt F)),
    unary main_v78 main_v79 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v75 main_v79 main_v80 (mulf : (⟨S4x256x16, .f32⟩ : BufTy).Contents (Elt F) → (⟨S4x256x16, .f32⟩ : BufTy).Contents (Elt F) → (⟨S4x256x16, .f32⟩ : BufTy).Contents (Elt F)),
    nullary main_cst_6 (constant S_ .f32 0x00000000#32),
    binary main_v80 main_cst_6 main_v81 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_7 (constantI S_ 32 3#32),
    unary main_c_7 main_v82 (broadcastInDim S1 ![] bcast_S_S1 : (⟨S_, .i32⟩ : BufTy).Contents (Elt F) → (⟨S1, .i32⟩ : BufTy).Contents (Elt F)),
    ternary main_v63 main_v82 main_v81 main_v83 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps3_ok : (stepOps3 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step3_val (V : Valuation τ sig (Elt Ideal)) :
    after (stepOps3 (F := Ideal)) V (no_index (Proc.devRef .tc main_v75)) = stepH 3 (by decide) (V (Proc.devRef .tc main_arg0)) (V (Proc.devRef .tc main_v3)) (V (Proc.devRef .tc main_arg2)) (V (Proc.devRef .tc main_v55))
    ∧ after (stepOps3 (F := Ideal)) V (no_index (Proc.devRef .tc main_v83)) = stepY 3 (by decide) (V (Proc.devRef .tc main_arg3)) (stepH 3 (by decide) (V (Proc.devRef .tc main_arg0)) (V (Proc.devRef .tc main_v3)) (V (Proc.devRef .tc main_arg2)) (V (Proc.devRef .tc main_v55))) (V (Proc.devRef .tc main_v63)) := by
  simp only [stepOps3]
  after_results_simp
  first | exact ⟨rfl, rfl⟩ | fail "value"
/-- Step 4 of the loop: operations 95 … 116 of the program. -/
abbrev stepOps4 : List (HloOp τ sig (Elt F)) :=
  [ unary main_v3 main_v84 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v75 main_v84 main_v85 (mulf : (⟨S4x256x16, .f32⟩ : BufTy).Contents (Elt F) → (⟨S4x256x16, .f32⟩ : BufTy).Contents (Elt F) → (⟨S4x256x16, .f32⟩ : BufTy).Contents (Elt F)),
    unary main_arg0 main_v86 ((extractStridedSlice S4x1x256 ![0, 4, 0] · slices_S4x512x256_S4x1x256_0_4_0) : (⟨S4x512x256, .f32⟩ : BufTy).Contents (Elt F) → (⟨S4x1x256, .f32⟩ : BufTy).Contents (Elt F)),
    reshape main_v86 main_v87 rfl shapeCasts_S4x1x256_S4x256,
    unary main_v87 main_v88 (broadcastInDim S4x256x1 ![0, 1] bcast_S4x256_S4x256x1_0_1 : (⟨S4x256, .f32⟩ : BufTy).Contents (Elt F) → (⟨S4x256x1, .f32⟩ : BufTy).Contents (Elt F)),
    unary main_arg2 main_v89 ((extractStridedSlice S4x1x16 ![0, 4, 0] · slices_S4x512x16_S4x1x16_0_4_0) : (⟨S4x512x16, .f32⟩ : BufTy).Contents (Elt F) → (⟨S4x1x16, .f32⟩ : BufTy).Contents (Elt F)),
    reshape main_v89 main_v90 rfl shapeCasts_S4x1x16_S4x16,
    unary main_v90 main_v91 (broadcastInDim S4x1x16 ![0, 2] bcast_S4x16_S4x1x16_0_2 : (⟨S4x16, .f32⟩ : BufTy).Contents (Elt F) → (⟨S4x1x16, .f32⟩ : BufTy).Contents (Elt F)),
    unary main_v88 main_v92 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v91 main_v93 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v92 main_v93 main_v94 (mulf : (⟨S4x256x16, .f32⟩ : BufTy).Contents (Elt F) → (⟨S4x256x16, .f32⟩ : BufTy).Contents (Elt F) → (⟨S4x256x16, .f32⟩ : BufTy).Contents (Elt F)),
    binary main_v85 main_v94 main_v95 (addf : (⟨S4x256x16, .f32⟩ : BufTy).Contents (Elt F) → (⟨S4x256x16, .f32⟩ : BufTy).Contents (Elt F) → (⟨S4x256x16, .f32⟩ : BufTy).Contents (Elt F)),
    unary main_arg3 main_v96 ((extractStridedSlice S4x1x16 ![0, 4, 0] · slices_S4x512x16_S4x1x16_0_4_0) : (⟨S4x512x16, .f32⟩ : BufTy).Contents (Elt F) → (⟨S4x1x16, .f32⟩ : BufTy).Contents (Elt F)),
    reshape main_v96 main_v97 rfl shapeCasts_S4x1x16_S4x16,
    unary main_v97 main_v98 (broadcastInDim S4x1x16 ![0, 2] bcast_S4x16_S4x1x16_0_2 : (⟨S4x16, .f32⟩ : BufTy).Contents (Elt F) → (⟨S4x1x16, .f32⟩ : BufTy).Contents (Elt F)),
    unary main_v98 main_v99 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v95 main_v99 main_v100 (mulf : (⟨S4x256x16, .f32⟩ : BufTy).Contents (Elt F) → (⟨S4x256x16, .f32⟩ : BufTy).Contents (Elt F) → (⟨S4x256x16, .f32⟩ : BufTy).Contents (Elt F)),
    nullary main_cst_8 (constant S_ .f32 0x00000000#32),
    binary main_v100 main_cst_8 main_v101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_9 (constantI S_ 32 4#32),
    unary main_c_9 main_v102 (broadcastInDim S1 ![] bcast_S_S1 : (⟨S_, .i32⟩ : BufTy).Contents (Elt F) → (⟨S1, .i32⟩ : BufTy).Contents (Elt F)),
    ternary main_v83 main_v102 main_v101 main_v103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps4_ok : (stepOps4 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step4_val (V : Valuation τ sig (Elt Ideal)) :
    after (stepOps4 (F := Ideal)) V (no_index (Proc.devRef .tc main_v95)) = stepH 4 (by decide) (V (Proc.devRef .tc main_arg0)) (V (Proc.devRef .tc main_v3)) (V (Proc.devRef .tc main_arg2)) (V (Proc.devRef .tc main_v75))
    ∧ after (stepOps4 (F := Ideal)) V (no_index (Proc.devRef .tc main_v103)) = stepY 4 (by decide) (V (Proc.devRef .tc main_arg3)) (stepH 4 (by decide) (V (Proc.devRef .tc main_arg0)) (V (Proc.devRef .tc main_v3)) (V (Proc.devRef .tc main_arg2)) (V (Proc.devRef .tc main_v75))) (V (Proc.devRef .tc main_v83)) := by
  simp only [stepOps4]
  after_results_simp
  first | exact ⟨rfl, rfl⟩ | fail "value"
/-- Step 5 of the loop: operations 117 … 138 of the program. -/
abbrev stepOps5 : List (HloOp τ sig (Elt F)) :=
  [ unary main_v3 main_v104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v95 main_v104 main_v105 (mulf : (⟨S4x256x16, .f32⟩ : BufTy).Contents (Elt F) → (⟨S4x256x16, .f32⟩ : BufTy).Contents (Elt F) → (⟨S4x256x16, .f32⟩ : BufTy).Contents (Elt F)),
    unary main_arg0 main_v106 ((extractStridedSlice S4x1x256 ![0, 5, 0] · slices_S4x512x256_S4x1x256_0_5_0) : (⟨S4x512x256, .f32⟩ : BufTy).Contents (Elt F) → (⟨S4x1x256, .f32⟩ : BufTy).Contents (Elt F)),
    reshape main_v106 main_v107 rfl shapeCasts_S4x1x256_S4x256,
    unary main_v107 main_v108 (broadcastInDim S4x256x1 ![0, 1] bcast_S4x256_S4x256x1_0_1 : (⟨S4x256, .f32⟩ : BufTy).Contents (Elt F) → (⟨S4x256x1, .f32⟩ : BufTy).Contents (Elt F)),
    unary main_arg2 main_v109 ((extractStridedSlice S4x1x16 ![0, 5, 0] · slices_S4x512x16_S4x1x16_0_5_0) : (⟨S4x512x16, .f32⟩ : BufTy).Contents (Elt F) → (⟨S4x1x16, .f32⟩ : BufTy).Contents (Elt F)),
    reshape main_v109 main_v110 rfl shapeCasts_S4x1x16_S4x16,
    unary main_v110 main_v111 (broadcastInDim S4x1x16 ![0, 2] bcast_S4x16_S4x1x16_0_2 : (⟨S4x16, .f32⟩ : BufTy).Contents (Elt F) → (⟨S4x1x16, .f32⟩ : BufTy).Contents (Elt F)),
    unary main_v108 main_v112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v111 main_v113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v112 main_v113 main_v114 (mulf : (⟨S4x256x16, .f32⟩ : BufTy).Contents (Elt F) → (⟨S4x256x16, .f32⟩ : BufTy).Contents (Elt F) → (⟨S4x256x16, .f32⟩ : BufTy).Contents (Elt F)),
    binary main_v105 main_v114 main_v115 (addf : (⟨S4x256x16, .f32⟩ : BufTy).Contents (Elt F) → (⟨S4x256x16, .f32⟩ : BufTy).Contents (Elt F) → (⟨S4x256x16, .f32⟩ : BufTy).Contents (Elt F)),
    unary main_arg3 main_v116 ((extractStridedSlice S4x1x16 ![0, 5, 0] · slices_S4x512x16_S4x1x16_0_5_0) : (⟨S4x512x16, .f32⟩ : BufTy).Contents (Elt F) → (⟨S4x1x16, .f32⟩ : BufTy).Contents (Elt F)),
    reshape main_v116 main_v117 rfl shapeCasts_S4x1x16_S4x16,
    unary main_v117 main_v118 (broadcastInDim S4x1x16 ![0, 2] bcast_S4x16_S4x1x16_0_2 : (⟨S4x16, .f32⟩ : BufTy).Contents (Elt F) → (⟨S4x1x16, .f32⟩ : BufTy).Contents (Elt F)),
    unary main_v118 main_v119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v115 main_v119 main_v120 (mulf : (⟨S4x256x16, .f32⟩ : BufTy).Contents (Elt F) → (⟨S4x256x16, .f32⟩ : BufTy).Contents (Elt F) → (⟨S4x256x16, .f32⟩ : BufTy).Contents (Elt F)),
    nullary main_cst_10 (constant S_ .f32 0x00000000#32),
    binary main_v120 main_cst_10 main_v121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_11 (constantI S_ 32 5#32),
    unary main_c_11 main_v122 (broadcastInDim S1 ![] bcast_S_S1 : (⟨S_, .i32⟩ : BufTy).Contents (Elt F) → (⟨S1, .i32⟩ : BufTy).Contents (Elt F)),
    ternary main_v103 main_v122 main_v121 main_v123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps5_ok : (stepOps5 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step5_val (V : Valuation τ sig (Elt Ideal)) :
    after (stepOps5 (F := Ideal)) V (no_index (Proc.devRef .tc main_v115)) = stepH 5 (by decide) (V (Proc.devRef .tc main_arg0)) (V (Proc.devRef .tc main_v3)) (V (Proc.devRef .tc main_arg2)) (V (Proc.devRef .tc main_v95))
    ∧ after (stepOps5 (F := Ideal)) V (no_index (Proc.devRef .tc main_v123)) = stepY 5 (by decide) (V (Proc.devRef .tc main_arg3)) (stepH 5 (by decide) (V (Proc.devRef .tc main_arg0)) (V (Proc.devRef .tc main_v3)) (V (Proc.devRef .tc main_arg2)) (V (Proc.devRef .tc main_v95))) (V (Proc.devRef .tc main_v103)) := by
  simp only [stepOps5]
  after_results_simp
  first | exact ⟨rfl, rfl⟩ | fail "value"
/-- Step 6 of the loop: operations 139 … 160 of the program. -/
abbrev stepOps6 : List (HloOp τ sig (Elt F)) :=
  [ unary main_v3 main_v124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v115 main_v124 main_v125 (mulf : (⟨S4x256x16, .f32⟩ : BufTy).Contents (Elt F) → (⟨S4x256x16, .f32⟩ : BufTy).Contents (Elt F) → (⟨S4x256x16, .f32⟩ : BufTy).Contents (Elt F)),
    unary main_arg0 main_v126 ((extractStridedSlice S4x1x256 ![0, 6, 0] · slices_S4x512x256_S4x1x256_0_6_0) : (⟨S4x512x256, .f32⟩ : BufTy).Contents (Elt F) → (⟨S4x1x256, .f32⟩ : BufTy).Contents (Elt F)),
    reshape main_v126 main_v127 rfl shapeCasts_S4x1x256_S4x256,
    unary main_v127 main_v128 (broadcastInDim S4x256x1 ![0, 1] bcast_S4x256_S4x256x1_0_1 : (⟨S4x256, .f32⟩ : BufTy).Contents (Elt F) → (⟨S4x256x1, .f32⟩ : BufTy).Contents (Elt F)),
    unary main_arg2 main_v129 ((extractStridedSlice S4x1x16 ![0, 6, 0] · slices_S4x512x16_S4x1x16_0_6_0) : (⟨S4x512x16, .f32⟩ : BufTy).Contents (Elt F) → (⟨S4x1x16, .f32⟩ : BufTy).Contents (Elt F)),
    reshape main_v129 main_v130 rfl shapeCasts_S4x1x16_S4x16,
    unary main_v130 main_v131 (broadcastInDim S4x1x16 ![0, 2] bcast_S4x16_S4x1x16_0_2 : (⟨S4x16, .f32⟩ : BufTy).Contents (Elt F) → (⟨S4x1x16, .f32⟩ : BufTy).Contents (Elt F)),
    unary main_v128 main_v132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v131 main_v133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v132 main_v133 main_v134 (mulf : (⟨S4x256x16, .f32⟩ : BufTy).Contents (Elt F) → (⟨S4x256x16, .f32⟩ : BufTy).Contents (Elt F) → (⟨S4x256x16, .f32⟩ : BufTy).Contents (Elt F)),
    binary main_v125 main_v134 main_v135 (addf : (⟨S4x256x16, .f32⟩ : BufTy).Contents (Elt F) → (⟨S4x256x16, .f32⟩ : BufTy).Contents (Elt F) → (⟨S4x256x16, .f32⟩ : BufTy).Contents (Elt F)),
    unary main_arg3 main_v136 ((extractStridedSlice S4x1x16 ![0, 6, 0] · slices_S4x512x16_S4x1x16_0_6_0) : (⟨S4x512x16, .f32⟩ : BufTy).Contents (Elt F) → (⟨S4x1x16, .f32⟩ : BufTy).Contents (Elt F)),
    reshape main_v136 main_v137 rfl shapeCasts_S4x1x16_S4x16,
    unary main_v137 main_v138 (broadcastInDim S4x1x16 ![0, 2] bcast_S4x16_S4x1x16_0_2 : (⟨S4x16, .f32⟩ : BufTy).Contents (Elt F) → (⟨S4x1x16, .f32⟩ : BufTy).Contents (Elt F)),
    unary main_v138 main_v139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v135 main_v139 main_v140 (mulf : (⟨S4x256x16, .f32⟩ : BufTy).Contents (Elt F) → (⟨S4x256x16, .f32⟩ : BufTy).Contents (Elt F) → (⟨S4x256x16, .f32⟩ : BufTy).Contents (Elt F)),
    nullary main_cst_12 (constant S_ .f32 0x00000000#32),
    binary main_v140 main_cst_12 main_v141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_13 (constantI S_ 32 6#32),
    unary main_c_13 main_v142 (broadcastInDim S1 ![] bcast_S_S1 : (⟨S_, .i32⟩ : BufTy).Contents (Elt F) → (⟨S1, .i32⟩ : BufTy).Contents (Elt F)),
    ternary main_v123 main_v142 main_v141 main_v143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps6_ok : (stepOps6 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step6_val (V : Valuation τ sig (Elt Ideal)) :
    after (stepOps6 (F := Ideal)) V (no_index (Proc.devRef .tc main_v135)) = stepH 6 (by decide) (V (Proc.devRef .tc main_arg0)) (V (Proc.devRef .tc main_v3)) (V (Proc.devRef .tc main_arg2)) (V (Proc.devRef .tc main_v115))
    ∧ after (stepOps6 (F := Ideal)) V (no_index (Proc.devRef .tc main_v143)) = stepY 6 (by decide) (V (Proc.devRef .tc main_arg3)) (stepH 6 (by decide) (V (Proc.devRef .tc main_arg0)) (V (Proc.devRef .tc main_v3)) (V (Proc.devRef .tc main_arg2)) (V (Proc.devRef .tc main_v115))) (V (Proc.devRef .tc main_v123)) := by
  simp only [stepOps6]
  after_results_simp
  first | exact ⟨rfl, rfl⟩ | fail "value"
/-- Step 7 of the loop: operations 161 … 182 of the program. -/
abbrev stepOps7 : List (HloOp τ sig (Elt F)) :=
  [ unary main_v3 main_v144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v135 main_v144 main_v145 (mulf : (⟨S4x256x16, .f32⟩ : BufTy).Contents (Elt F) → (⟨S4x256x16, .f32⟩ : BufTy).Contents (Elt F) → (⟨S4x256x16, .f32⟩ : BufTy).Contents (Elt F)),
    unary main_arg0 main_v146 ((extractStridedSlice S4x1x256 ![0, 7, 0] · slices_S4x512x256_S4x1x256_0_7_0) : (⟨S4x512x256, .f32⟩ : BufTy).Contents (Elt F) → (⟨S4x1x256, .f32⟩ : BufTy).Contents (Elt F)),
    reshape main_v146 main_v147 rfl shapeCasts_S4x1x256_S4x256,
    unary main_v147 main_v148 (broadcastInDim S4x256x1 ![0, 1] bcast_S4x256_S4x256x1_0_1 : (⟨S4x256, .f32⟩ : BufTy).Contents (Elt F) → (⟨S4x256x1, .f32⟩ : BufTy).Contents (Elt F)),
    unary main_arg2 main_v149 ((extractStridedSlice S4x1x16 ![0, 7, 0] · slices_S4x512x16_S4x1x16_0_7_0) : (⟨S4x512x16, .f32⟩ : BufTy).Contents (Elt F) → (⟨S4x1x16, .f32⟩ : BufTy).Contents (Elt F)),
    reshape main_v149 main_v150 rfl shapeCasts_S4x1x16_S4x16,
    unary main_v150 main_v151 (broadcastInDim S4x1x16 ![0, 2] bcast_S4x16_S4x1x16_0_2 : (⟨S4x16, .f32⟩ : BufTy).Contents (Elt F) → (⟨S4x1x16, .f32⟩ : BufTy).Contents (Elt F)),
    unary main_v148 main_v152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v151 main_v153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v152 main_v153 main_v154 (mulf : (⟨S4x256x16, .f32⟩ : BufTy).Contents (Elt F) → (⟨S4x256x16, .f32⟩ : BufTy).Contents (Elt F) → (⟨S4x256x16, .f32⟩ : BufTy).Contents (Elt F)),
    binary main_v145 main_v154 main_v155 (addf : (⟨S4x256x16, .f32⟩ : BufTy).Contents (Elt F) → (⟨S4x256x16, .f32⟩ : BufTy).Contents (Elt F) → (⟨S4x256x16, .f32⟩ : BufTy).Contents (Elt F)),
    unary main_arg3 main_v156 ((extractStridedSlice S4x1x16 ![0, 7, 0] · slices_S4x512x16_S4x1x16_0_7_0) : (⟨S4x512x16, .f32⟩ : BufTy).Contents (Elt F) → (⟨S4x1x16, .f32⟩ : BufTy).Contents (Elt F)),
    reshape main_v156 main_v157 rfl shapeCasts_S4x1x16_S4x16,
    unary main_v157 main_v158 (broadcastInDim S4x1x16 ![0, 2] bcast_S4x16_S4x1x16_0_2 : (⟨S4x16, .f32⟩ : BufTy).Contents (Elt F) → (⟨S4x1x16, .f32⟩ : BufTy).Contents (Elt F)),
    unary main_v158 main_v159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v155 main_v159 main_v160 (mulf : (⟨S4x256x16, .f32⟩ : BufTy).Contents (Elt F) → (⟨S4x256x16, .f32⟩ : BufTy).Contents (Elt F) → (⟨S4x256x16, .f32⟩ : BufTy).Contents (Elt F)),
    nullary main_cst_14 (constant S_ .f32 0x00000000#32),
    binary main_v160 main_cst_14 main_v161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_15 (constantI S_ 32 7#32),
    unary main_c_15 main_v162 (broadcastInDim S1 ![] bcast_S_S1 : (⟨S_, .i32⟩ : BufTy).Contents (Elt F) → (⟨S1, .i32⟩ : BufTy).Contents (Elt F)),
    ternary main_v143 main_v162 main_v161 main_v163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps7_ok : (stepOps7 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step7_val (V : Valuation τ sig (Elt Ideal)) :
    after (stepOps7 (F := Ideal)) V (no_index (Proc.devRef .tc main_v155)) = stepH 7 (by decide) (V (Proc.devRef .tc main_arg0)) (V (Proc.devRef .tc main_v3)) (V (Proc.devRef .tc main_arg2)) (V (Proc.devRef .tc main_v135))
    ∧ after (stepOps7 (F := Ideal)) V (no_index (Proc.devRef .tc main_v163)) = stepY 7 (by decide) (V (Proc.devRef .tc main_arg3)) (stepH 7 (by decide) (V (Proc.devRef .tc main_arg0)) (V (Proc.devRef .tc main_v3)) (V (Proc.devRef .tc main_arg2)) (V (Proc.devRef .tc main_v135))) (V (Proc.devRef .tc main_v143)) := by
  simp only [stepOps7]
  after_results_simp
  first | exact ⟨rfl, rfl⟩ | fail "value"
/-- Step 8 of the loop: operations 183 … 204 of the program. -/
abbrev stepOps8 : List (HloOp τ sig (Elt F)) :=
  [ unary main_v3 main_v164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v155 main_v164 main_v165 (mulf : (⟨S4x256x16, .f32⟩ : BufTy).Contents (Elt F) → (⟨S4x256x16, .f32⟩ : BufTy).Contents (Elt F) → (⟨S4x256x16, .f32⟩ : BufTy).Contents (Elt F)),
    unary main_arg0 main_v166 ((extractStridedSlice S4x1x256 ![0, 8, 0] · slices_S4x512x256_S4x1x256_0_8_0) : (⟨S4x512x256, .f32⟩ : BufTy).Contents (Elt F) → (⟨S4x1x256, .f32⟩ : BufTy).Contents (Elt F)),
    reshape main_v166 main_v167 rfl shapeCasts_S4x1x256_S4x256,
    unary main_v167 main_v168 (broadcastInDim S4x256x1 ![0, 1] bcast_S4x256_S4x256x1_0_1 : (⟨S4x256, .f32⟩ : BufTy).Contents (Elt F) → (⟨S4x256x1, .f32⟩ : BufTy).Contents (Elt F)),
    unary main_arg2 main_v169 ((extractStridedSlice S4x1x16 ![0, 8, 0] · slices_S4x512x16_S4x1x16_0_8_0) : (⟨S4x512x16, .f32⟩ : BufTy).Contents (Elt F) → (⟨S4x1x16, .f32⟩ : BufTy).Contents (Elt F)),
    reshape main_v169 main_v170 rfl shapeCasts_S4x1x16_S4x16,
    unary main_v170 main_v171 (broadcastInDim S4x1x16 ![0, 2] bcast_S4x16_S4x1x16_0_2 : (⟨S4x16, .f32⟩ : BufTy).Contents (Elt F) → (⟨S4x1x16, .f32⟩ : BufTy).Contents (Elt F)),
    unary main_v168 main_v172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v171 main_v173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v172 main_v173 main_v174 (mulf : (⟨S4x256x16, .f32⟩ : BufTy).Contents (Elt F) → (⟨S4x256x16, .f32⟩ : BufTy).Contents (Elt F) → (⟨S4x256x16, .f32⟩ : BufTy).Contents (Elt F)),
    binary main_v165 main_v174 main_v175 (addf : (⟨S4x256x16, .f32⟩ : BufTy).Contents (Elt F) → (⟨S4x256x16, .f32⟩ : BufTy).Contents (Elt F) → (⟨S4x256x16, .f32⟩ : BufTy).Contents (Elt F)),
    unary main_arg3 main_v176 ((extractStridedSlice S4x1x16 ![0, 8, 0] · slices_S4x512x16_S4x1x16_0_8_0) : (⟨S4x512x16, .f32⟩ : BufTy).Contents (Elt F) → (⟨S4x1x16, .f32⟩ : BufTy).Contents (Elt F)),
    reshape main_v176 main_v177 rfl shapeCasts_S4x1x16_S4x16,
    unary main_v177 main_v178 (broadcastInDim S4x1x16 ![0, 2] bcast_S4x16_S4x1x16_0_2 : (⟨S4x16, .f32⟩ : BufTy).Contents (Elt F) → (⟨S4x1x16, .f32⟩ : BufTy).Contents (Elt F)),
    unary main_v178 main_v179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v175 main_v179 main_v180 (mulf : (⟨S4x256x16, .f32⟩ : BufTy).Contents (Elt F) → (⟨S4x256x16, .f32⟩ : BufTy).Contents (Elt F) → (⟨S4x256x16, .f32⟩ : BufTy).Contents (Elt F)),
    nullary main_cst_16 (constant S_ .f32 0x00000000#32),
    binary main_v180 main_cst_16 main_v181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_17 (constantI S_ 32 8#32),
    unary main_c_17 main_v182 (broadcastInDim S1 ![] bcast_S_S1 : (⟨S_, .i32⟩ : BufTy).Contents (Elt F) → (⟨S1, .i32⟩ : BufTy).Contents (Elt F)),
    ternary main_v163 main_v182 main_v181 main_v183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps8_ok : (stepOps8 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step8_val (V : Valuation τ sig (Elt Ideal)) :
    after (stepOps8 (F := Ideal)) V (no_index (Proc.devRef .tc main_v175)) = stepH 8 (by decide) (V (Proc.devRef .tc main_arg0)) (V (Proc.devRef .tc main_v3)) (V (Proc.devRef .tc main_arg2)) (V (Proc.devRef .tc main_v155))
    ∧ after (stepOps8 (F := Ideal)) V (no_index (Proc.devRef .tc main_v183)) = stepY 8 (by decide) (V (Proc.devRef .tc main_arg3)) (stepH 8 (by decide) (V (Proc.devRef .tc main_arg0)) (V (Proc.devRef .tc main_v3)) (V (Proc.devRef .tc main_arg2)) (V (Proc.devRef .tc main_v155))) (V (Proc.devRef .tc main_v163)) := by
  simp only [stepOps8]
  after_results_simp
  first | exact ⟨rfl, rfl⟩ | fail "value"
/-- Step 9 of the loop: operations 205 … 226 of the program. -/
abbrev stepOps9 : List (HloOp τ sig (Elt F)) :=
  [ unary main_v3 main_v184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v175 main_v184 main_v185 (mulf : (⟨S4x256x16, .f32⟩ : BufTy).Contents (Elt F) → (⟨S4x256x16, .f32⟩ : BufTy).Contents (Elt F) → (⟨S4x256x16, .f32⟩ : BufTy).Contents (Elt F)),
    unary main_arg0 main_v186 ((extractStridedSlice S4x1x256 ![0, 9, 0] · slices_S4x512x256_S4x1x256_0_9_0) : (⟨S4x512x256, .f32⟩ : BufTy).Contents (Elt F) → (⟨S4x1x256, .f32⟩ : BufTy).Contents (Elt F)),
    reshape main_v186 main_v187 rfl shapeCasts_S4x1x256_S4x256,
    unary main_v187 main_v188 (broadcastInDim S4x256x1 ![0, 1] bcast_S4x256_S4x256x1_0_1 : (⟨S4x256, .f32⟩ : BufTy).Contents (Elt F) → (⟨S4x256x1, .f32⟩ : BufTy).Contents (Elt F)),
    unary main_arg2 main_v189 ((extractStridedSlice S4x1x16 ![0, 9, 0] · slices_S4x512x16_S4x1x16_0_9_0) : (⟨S4x512x16, .f32⟩ : BufTy).Contents (Elt F) → (⟨S4x1x16, .f32⟩ : BufTy).Contents (Elt F)),
    reshape main_v189 main_v190 rfl shapeCasts_S4x1x16_S4x16,
    unary main_v190 main_v191 (broadcastInDim S4x1x16 ![0, 2] bcast_S4x16_S4x1x16_0_2 : (⟨S4x16, .f32⟩ : BufTy).Contents (Elt F) → (⟨S4x1x16, .f32⟩ : BufTy).Contents (Elt F)),
    unary main_v188 main_v192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v191 main_v193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v192 main_v193 main_v194 (mulf : (⟨S4x256x16, .f32⟩ : BufTy).Contents (Elt F) → (⟨S4x256x16, .f32⟩ : BufTy).Contents (Elt F) → (⟨S4x256x16, .f32⟩ : BufTy).Contents (Elt F)),
    binary main_v185 main_v194 main_v195 (addf : (⟨S4x256x16, .f32⟩ : BufTy).Contents (Elt F) → (⟨S4x256x16, .f32⟩ : BufTy).Contents (Elt F) → (⟨S4x256x16, .f32⟩ : BufTy).Contents (Elt F)),
    unary main_arg3 main_v196 ((extractStridedSlice S4x1x16 ![0, 9, 0] · slices_S4x512x16_S4x1x16_0_9_0) : (⟨S4x512x16, .f32⟩ : BufTy).Contents (Elt F) → (⟨S4x1x16, .f32⟩ : BufTy).Contents (Elt F)),
    reshape main_v196 main_v197 rfl shapeCasts_S4x1x16_S4x16,
    unary main_v197 main_v198 (broadcastInDim S4x1x16 ![0, 2] bcast_S4x16_S4x1x16_0_2 : (⟨S4x16, .f32⟩ : BufTy).Contents (Elt F) → (⟨S4x1x16, .f32⟩ : BufTy).Contents (Elt F)),
    unary main_v198 main_v199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v195 main_v199 main_v200 (mulf : (⟨S4x256x16, .f32⟩ : BufTy).Contents (Elt F) → (⟨S4x256x16, .f32⟩ : BufTy).Contents (Elt F) → (⟨S4x256x16, .f32⟩ : BufTy).Contents (Elt F)),
    nullary main_cst_18 (constant S_ .f32 0x00000000#32),
    binary main_v200 main_cst_18 main_v201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_19 (constantI S_ 32 9#32),
    unary main_c_19 main_v202 (broadcastInDim S1 ![] bcast_S_S1 : (⟨S_, .i32⟩ : BufTy).Contents (Elt F) → (⟨S1, .i32⟩ : BufTy).Contents (Elt F)),
    ternary main_v183 main_v202 main_v201 main_v203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps9_ok : (stepOps9 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step9_val (V : Valuation τ sig (Elt Ideal)) :
    after (stepOps9 (F := Ideal)) V (no_index (Proc.devRef .tc main_v195)) = stepH 9 (by decide) (V (Proc.devRef .tc main_arg0)) (V (Proc.devRef .tc main_v3)) (V (Proc.devRef .tc main_arg2)) (V (Proc.devRef .tc main_v175))
    ∧ after (stepOps9 (F := Ideal)) V (no_index (Proc.devRef .tc main_v203)) = stepY 9 (by decide) (V (Proc.devRef .tc main_arg3)) (stepH 9 (by decide) (V (Proc.devRef .tc main_arg0)) (V (Proc.devRef .tc main_v3)) (V (Proc.devRef .tc main_arg2)) (V (Proc.devRef .tc main_v175))) (V (Proc.devRef .tc main_v183)) := by
  simp only [stepOps9]
  after_results_simp
  first | exact ⟨rfl, rfl⟩ | fail "value"
/-- Step 10 of the loop: operations 227 … 248 of the program. -/
abbrev stepOps10 : List (HloOp τ sig (Elt F)) :=
  [ unary main_v3 main_v204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v195 main_v204 main_v205 (mulf : (⟨S4x256x16, .f32⟩ : BufTy).Contents (Elt F) → (⟨S4x256x16, .f32⟩ : BufTy).Contents (Elt F) → (⟨S4x256x16, .f32⟩ : BufTy).Contents (Elt F)),
    unary main_arg0 main_v206 ((extractStridedSlice S4x1x256 ![0, 10, 0] · slices_S4x512x256_S4x1x256_0_10_0) : (⟨S4x512x256, .f32⟩ : BufTy).Contents (Elt F) → (⟨S4x1x256, .f32⟩ : BufTy).Contents (Elt F)),
    reshape main_v206 main_v207 rfl shapeCasts_S4x1x256_S4x256,
    unary main_v207 main_v208 (broadcastInDim S4x256x1 ![0, 1] bcast_S4x256_S4x256x1_0_1 : (⟨S4x256, .f32⟩ : BufTy).Contents (Elt F) → (⟨S4x256x1, .f32⟩ : BufTy).Contents (Elt F)),
    unary main_arg2 main_v209 ((extractStridedSlice S4x1x16 ![0, 10, 0] · slices_S4x512x16_S4x1x16_0_10_0) : (⟨S4x512x16, .f32⟩ : BufTy).Contents (Elt F) → (⟨S4x1x16, .f32⟩ : BufTy).Contents (Elt F)),
    reshape main_v209 main_v210 rfl shapeCasts_S4x1x16_S4x16,
    unary main_v210 main_v211 (broadcastInDim S4x1x16 ![0, 2] bcast_S4x16_S4x1x16_0_2 : (⟨S4x16, .f32⟩ : BufTy).Contents (Elt F) → (⟨S4x1x16, .f32⟩ : BufTy).Contents (Elt F)),
    unary main_v208 main_v212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v211 main_v213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v212 main_v213 main_v214 (mulf : (⟨S4x256x16, .f32⟩ : BufTy).Contents (Elt F) → (⟨S4x256x16, .f32⟩ : BufTy).Contents (Elt F) → (⟨S4x256x16, .f32⟩ : BufTy).Contents (Elt F)),
    binary main_v205 main_v214 main_v215 (addf : (⟨S4x256x16, .f32⟩ : BufTy).Contents (Elt F) → (⟨S4x256x16, .f32⟩ : BufTy).Contents (Elt F) → (⟨S4x256x16, .f32⟩ : BufTy).Contents (Elt F)),
    unary main_arg3 main_v216 ((extractStridedSlice S4x1x16 ![0, 10, 0] · slices_S4x512x16_S4x1x16_0_10_0) : (⟨S4x512x16, .f32⟩ : BufTy).Contents (Elt F) → (⟨S4x1x16, .f32⟩ : BufTy).Contents (Elt F)),
    reshape main_v216 main_v217 rfl shapeCasts_S4x1x16_S4x16,
    unary main_v217 main_v218 (broadcastInDim S4x1x16 ![0, 2] bcast_S4x16_S4x1x16_0_2 : (⟨S4x16, .f32⟩ : BufTy).Contents (Elt F) → (⟨S4x1x16, .f32⟩ : BufTy).Contents (Elt F)),
    unary main_v218 main_v219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v215 main_v219 main_v220 (mulf : (⟨S4x256x16, .f32⟩ : BufTy).Contents (Elt F) → (⟨S4x256x16, .f32⟩ : BufTy).Contents (Elt F) → (⟨S4x256x16, .f32⟩ : BufTy).Contents (Elt F)),
    nullary main_cst_20 (constant S_ .f32 0x00000000#32),
    binary main_v220 main_cst_20 main_v221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_21 (constantI S_ 32 10#32),
    unary main_c_21 main_v222 (broadcastInDim S1 ![] bcast_S_S1 : (⟨S_, .i32⟩ : BufTy).Contents (Elt F) → (⟨S1, .i32⟩ : BufTy).Contents (Elt F)),
    ternary main_v203 main_v222 main_v221 main_v223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps10_ok : (stepOps10 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step10_val (V : Valuation τ sig (Elt Ideal)) :
    after (stepOps10 (F := Ideal)) V (no_index (Proc.devRef .tc main_v215)) = stepH 10 (by decide) (V (Proc.devRef .tc main_arg0)) (V (Proc.devRef .tc main_v3)) (V (Proc.devRef .tc main_arg2)) (V (Proc.devRef .tc main_v195))
    ∧ after (stepOps10 (F := Ideal)) V (no_index (Proc.devRef .tc main_v223)) = stepY 10 (by decide) (V (Proc.devRef .tc main_arg3)) (stepH 10 (by decide) (V (Proc.devRef .tc main_arg0)) (V (Proc.devRef .tc main_v3)) (V (Proc.devRef .tc main_arg2)) (V (Proc.devRef .tc main_v195))) (V (Proc.devRef .tc main_v203)) := by
  simp only [stepOps10]
  after_results_simp
  first | exact ⟨rfl, rfl⟩ | fail "value"
/-- Step 11 of the loop: operations 249 … 270 of the program. -/
abbrev stepOps11 : List (HloOp τ sig (Elt F)) :=
  [ unary main_v3 main_v224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v215 main_v224 main_v225 (mulf : (⟨S4x256x16, .f32⟩ : BufTy).Contents (Elt F) → (⟨S4x256x16, .f32⟩ : BufTy).Contents (Elt F) → (⟨S4x256x16, .f32⟩ : BufTy).Contents (Elt F)),
    unary main_arg0 main_v226 ((extractStridedSlice S4x1x256 ![0, 11, 0] · slices_S4x512x256_S4x1x256_0_11_0) : (⟨S4x512x256, .f32⟩ : BufTy).Contents (Elt F) → (⟨S4x1x256, .f32⟩ : BufTy).Contents (Elt F)),
    reshape main_v226 main_v227 rfl shapeCasts_S4x1x256_S4x256,
    unary main_v227 main_v228 (broadcastInDim S4x256x1 ![0, 1] bcast_S4x256_S4x256x1_0_1 : (⟨S4x256, .f32⟩ : BufTy).Contents (Elt F) → (⟨S4x256x1, .f32⟩ : BufTy).Contents (Elt F)),
    unary main_arg2 main_v229 ((extractStridedSlice S4x1x16 ![0, 11, 0] · slices_S4x512x16_S4x1x16_0_11_0) : (⟨S4x512x16, .f32⟩ : BufTy).Contents (Elt F) → (⟨S4x1x16, .f32⟩ : BufTy).Contents (Elt F)),
    reshape main_v229 main_v230 rfl shapeCasts_S4x1x16_S4x16,
    unary main_v230 main_v231 (broadcastInDim S4x1x16 ![0, 2] bcast_S4x16_S4x1x16_0_2 : (⟨S4x16, .f32⟩ : BufTy).Contents (Elt F) → (⟨S4x1x16, .f32⟩ : BufTy).Contents (Elt F)),
    unary main_v228 main_v232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v231 main_v233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v232 main_v233 main_v234 (mulf : (⟨S4x256x16, .f32⟩ : BufTy).Contents (Elt F) → (⟨S4x256x16, .f32⟩ : BufTy).Contents (Elt F) → (⟨S4x256x16, .f32⟩ : BufTy).Contents (Elt F)),
    binary main_v225 main_v234 main_v235 (addf : (⟨S4x256x16, .f32⟩ : BufTy).Contents (Elt F) → (⟨S4x256x16, .f32⟩ : BufTy).Contents (Elt F) → (⟨S4x256x16, .f32⟩ : BufTy).Contents (Elt F)),
    unary main_arg3 main_v236 ((extractStridedSlice S4x1x16 ![0, 11, 0] · slices_S4x512x16_S4x1x16_0_11_0) : (⟨S4x512x16, .f32⟩ : BufTy).Contents (Elt F) → (⟨S4x1x16, .f32⟩ : BufTy).Contents (Elt F)),
    reshape main_v236 main_v237 rfl shapeCasts_S4x1x16_S4x16,
    unary main_v237 main_v238 (broadcastInDim S4x1x16 ![0, 2] bcast_S4x16_S4x1x16_0_2 : (⟨S4x16, .f32⟩ : BufTy).Contents (Elt F) → (⟨S4x1x16, .f32⟩ : BufTy).Contents (Elt F)),
    unary main_v238 main_v239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v235 main_v239 main_v240 (mulf : (⟨S4x256x16, .f32⟩ : BufTy).Contents (Elt F) → (⟨S4x256x16, .f32⟩ : BufTy).Contents (Elt F) → (⟨S4x256x16, .f32⟩ : BufTy).Contents (Elt F)),
    nullary main_cst_22 (constant S_ .f32 0x00000000#32),
    binary main_v240 main_cst_22 main_v241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_23 (constantI S_ 32 11#32),
    unary main_c_23 main_v242 (broadcastInDim S1 ![] bcast_S_S1 : (⟨S_, .i32⟩ : BufTy).Contents (Elt F) → (⟨S1, .i32⟩ : BufTy).Contents (Elt F)),
    ternary main_v223 main_v242 main_v241 main_v243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps11_ok : (stepOps11 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step11_val (V : Valuation τ sig (Elt Ideal)) :
    after (stepOps11 (F := Ideal)) V (no_index (Proc.devRef .tc main_v235)) = stepH 11 (by decide) (V (Proc.devRef .tc main_arg0)) (V (Proc.devRef .tc main_v3)) (V (Proc.devRef .tc main_arg2)) (V (Proc.devRef .tc main_v215))
    ∧ after (stepOps11 (F := Ideal)) V (no_index (Proc.devRef .tc main_v243)) = stepY 11 (by decide) (V (Proc.devRef .tc main_arg3)) (stepH 11 (by decide) (V (Proc.devRef .tc main_arg0)) (V (Proc.devRef .tc main_v3)) (V (Proc.devRef .tc main_arg2)) (V (Proc.devRef .tc main_v215))) (V (Proc.devRef .tc main_v223)) := by
  simp only [stepOps11]
  after_results_simp
  first | exact ⟨rfl, rfl⟩ | fail "value"
/-- Step 12 of the loop: operations 271 … 292 of the program. -/
abbrev stepOps12 : List (HloOp τ sig (Elt F)) :=
  [ unary main_v3 main_v244 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v235 main_v244 main_v245 (mulf : (⟨S4x256x16, .f32⟩ : BufTy).Contents (Elt F) → (⟨S4x256x16, .f32⟩ : BufTy).Contents (Elt F) → (⟨S4x256x16, .f32⟩ : BufTy).Contents (Elt F)),
    unary main_arg0 main_v246 ((extractStridedSlice S4x1x256 ![0, 12, 0] · slices_S4x512x256_S4x1x256_0_12_0) : (⟨S4x512x256, .f32⟩ : BufTy).Contents (Elt F) → (⟨S4x1x256, .f32⟩ : BufTy).Contents (Elt F)),
    reshape main_v246 main_v247 rfl shapeCasts_S4x1x256_S4x256,
    unary main_v247 main_v248 (broadcastInDim S4x256x1 ![0, 1] bcast_S4x256_S4x256x1_0_1 : (⟨S4x256, .f32⟩ : BufTy).Contents (Elt F) → (⟨S4x256x1, .f32⟩ : BufTy).Contents (Elt F)),
    unary main_arg2 main_v249 ((extractStridedSlice S4x1x16 ![0, 12, 0] · slices_S4x512x16_S4x1x16_0_12_0) : (⟨S4x512x16, .f32⟩ : BufTy).Contents (Elt F) → (⟨S4x1x16, .f32⟩ : BufTy).Contents (Elt F)),
    reshape main_v249 main_v250 rfl shapeCasts_S4x1x16_S4x16,
    unary main_v250 main_v251 (broadcastInDim S4x1x16 ![0, 2] bcast_S4x16_S4x1x16_0_2 : (⟨S4x16, .f32⟩ : BufTy).Contents (Elt F) → (⟨S4x1x16, .f32⟩ : BufTy).Contents (Elt F)),
    unary main_v248 main_v252 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v251 main_v253 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v252 main_v253 main_v254 (mulf : (⟨S4x256x16, .f32⟩ : BufTy).Contents (Elt F) → (⟨S4x256x16, .f32⟩ : BufTy).Contents (Elt F) → (⟨S4x256x16, .f32⟩ : BufTy).Contents (Elt F)),
    binary main_v245 main_v254 main_v255 (addf : (⟨S4x256x16, .f32⟩ : BufTy).Contents (Elt F) → (⟨S4x256x16, .f32⟩ : BufTy).Contents (Elt F) → (⟨S4x256x16, .f32⟩ : BufTy).Contents (Elt F)),
    unary main_arg3 main_v256 ((extractStridedSlice S4x1x16 ![0, 12, 0] · slices_S4x512x16_S4x1x16_0_12_0) : (⟨S4x512x16, .f32⟩ : BufTy).Contents (Elt F) → (⟨S4x1x16, .f32⟩ : BufTy).Contents (Elt F)),
    reshape main_v256 main_v257 rfl shapeCasts_S4x1x16_S4x16,
    unary main_v257 main_v258 (broadcastInDim S4x1x16 ![0, 2] bcast_S4x16_S4x1x16_0_2 : (⟨S4x16, .f32⟩ : BufTy).Contents (Elt F) → (⟨S4x1x16, .f32⟩ : BufTy).Contents (Elt F)),
    unary main_v258 main_v259 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v255 main_v259 main_v260 (mulf : (⟨S4x256x16, .f32⟩ : BufTy).Contents (Elt F) → (⟨S4x256x16, .f32⟩ : BufTy).Contents (Elt F) → (⟨S4x256x16, .f32⟩ : BufTy).Contents (Elt F)),
    nullary main_cst_24 (constant S_ .f32 0x00000000#32),
    binary main_v260 main_cst_24 main_v261 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_25 (constantI S_ 32 12#32),
    unary main_c_25 main_v262 (broadcastInDim S1 ![] bcast_S_S1 : (⟨S_, .i32⟩ : BufTy).Contents (Elt F) → (⟨S1, .i32⟩ : BufTy).Contents (Elt F)),
    ternary main_v243 main_v262 main_v261 main_v263 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps12_ok : (stepOps12 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step12_val (V : Valuation τ sig (Elt Ideal)) :
    after (stepOps12 (F := Ideal)) V (no_index (Proc.devRef .tc main_v255)) = stepH 12 (by decide) (V (Proc.devRef .tc main_arg0)) (V (Proc.devRef .tc main_v3)) (V (Proc.devRef .tc main_arg2)) (V (Proc.devRef .tc main_v235))
    ∧ after (stepOps12 (F := Ideal)) V (no_index (Proc.devRef .tc main_v263)) = stepY 12 (by decide) (V (Proc.devRef .tc main_arg3)) (stepH 12 (by decide) (V (Proc.devRef .tc main_arg0)) (V (Proc.devRef .tc main_v3)) (V (Proc.devRef .tc main_arg2)) (V (Proc.devRef .tc main_v235))) (V (Proc.devRef .tc main_v243)) := by
  simp only [stepOps12]
  after_results_simp
  first | exact ⟨rfl, rfl⟩ | fail "value"
/-- Step 13 of the loop: operations 293 … 314 of the program. -/
abbrev stepOps13 : List (HloOp τ sig (Elt F)) :=
  [ unary main_v3 main_v264 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v255 main_v264 main_v265 (mulf : (⟨S4x256x16, .f32⟩ : BufTy).Contents (Elt F) → (⟨S4x256x16, .f32⟩ : BufTy).Contents (Elt F) → (⟨S4x256x16, .f32⟩ : BufTy).Contents (Elt F)),
    unary main_arg0 main_v266 ((extractStridedSlice S4x1x256 ![0, 13, 0] · slices_S4x512x256_S4x1x256_0_13_0) : (⟨S4x512x256, .f32⟩ : BufTy).Contents (Elt F) → (⟨S4x1x256, .f32⟩ : BufTy).Contents (Elt F)),
    reshape main_v266 main_v267 rfl shapeCasts_S4x1x256_S4x256,
    unary main_v267 main_v268 (broadcastInDim S4x256x1 ![0, 1] bcast_S4x256_S4x256x1_0_1 : (⟨S4x256, .f32⟩ : BufTy).Contents (Elt F) → (⟨S4x256x1, .f32⟩ : BufTy).Contents (Elt F)),
    unary main_arg2 main_v269 ((extractStridedSlice S4x1x16 ![0, 13, 0] · slices_S4x512x16_S4x1x16_0_13_0) : (⟨S4x512x16, .f32⟩ : BufTy).Contents (Elt F) → (⟨S4x1x16, .f32⟩ : BufTy).Contents (Elt F)),
    reshape main_v269 main_v270 rfl shapeCasts_S4x1x16_S4x16,
    unary main_v270 main_v271 (broadcastInDim S4x1x16 ![0, 2] bcast_S4x16_S4x1x16_0_2 : (⟨S4x16, .f32⟩ : BufTy).Contents (Elt F) → (⟨S4x1x16, .f32⟩ : BufTy).Contents (Elt F)),
    unary main_v268 main_v272 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v271 main_v273 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v272 main_v273 main_v274 (mulf : (⟨S4x256x16, .f32⟩ : BufTy).Contents (Elt F) → (⟨S4x256x16, .f32⟩ : BufTy).Contents (Elt F) → (⟨S4x256x16, .f32⟩ : BufTy).Contents (Elt F)),
    binary main_v265 main_v274 main_v275 (addf : (⟨S4x256x16, .f32⟩ : BufTy).Contents (Elt F) → (⟨S4x256x16, .f32⟩ : BufTy).Contents (Elt F) → (⟨S4x256x16, .f32⟩ : BufTy).Contents (Elt F)),
    unary main_arg3 main_v276 ((extractStridedSlice S4x1x16 ![0, 13, 0] · slices_S4x512x16_S4x1x16_0_13_0) : (⟨S4x512x16, .f32⟩ : BufTy).Contents (Elt F) → (⟨S4x1x16, .f32⟩ : BufTy).Contents (Elt F)),
    reshape main_v276 main_v277 rfl shapeCasts_S4x1x16_S4x16,
    unary main_v277 main_v278 (broadcastInDim S4x1x16 ![0, 2] bcast_S4x16_S4x1x16_0_2 : (⟨S4x16, .f32⟩ : BufTy).Contents (Elt F) → (⟨S4x1x16, .f32⟩ : BufTy).Contents (Elt F)),
    unary main_v278 main_v279 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v275 main_v279 main_v280 (mulf : (⟨S4x256x16, .f32⟩ : BufTy).Contents (Elt F) → (⟨S4x256x16, .f32⟩ : BufTy).Contents (Elt F) → (⟨S4x256x16, .f32⟩ : BufTy).Contents (Elt F)),
    nullary main_cst_26 (constant S_ .f32 0x00000000#32),
    binary main_v280 main_cst_26 main_v281 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_27 (constantI S_ 32 13#32),
    unary main_c_27 main_v282 (broadcastInDim S1 ![] bcast_S_S1 : (⟨S_, .i32⟩ : BufTy).Contents (Elt F) → (⟨S1, .i32⟩ : BufTy).Contents (Elt F)),
    ternary main_v263 main_v282 main_v281 main_v283 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps13_ok : (stepOps13 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step13_val (V : Valuation τ sig (Elt Ideal)) :
    after (stepOps13 (F := Ideal)) V (no_index (Proc.devRef .tc main_v275)) = stepH 13 (by decide) (V (Proc.devRef .tc main_arg0)) (V (Proc.devRef .tc main_v3)) (V (Proc.devRef .tc main_arg2)) (V (Proc.devRef .tc main_v255))
    ∧ after (stepOps13 (F := Ideal)) V (no_index (Proc.devRef .tc main_v283)) = stepY 13 (by decide) (V (Proc.devRef .tc main_arg3)) (stepH 13 (by decide) (V (Proc.devRef .tc main_arg0)) (V (Proc.devRef .tc main_v3)) (V (Proc.devRef .tc main_arg2)) (V (Proc.devRef .tc main_v255))) (V (Proc.devRef .tc main_v263)) := by
  simp only [stepOps13]
  after_results_simp
  first | exact ⟨rfl, rfl⟩ | fail "value"
/-- Step 14 of the loop: operations 315 … 336 of the program. -/
abbrev stepOps14 : List (HloOp τ sig (Elt F)) :=
  [ unary main_v3 main_v284 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v275 main_v284 main_v285 (mulf : (⟨S4x256x16, .f32⟩ : BufTy).Contents (Elt F) → (⟨S4x256x16, .f32⟩ : BufTy).Contents (Elt F) → (⟨S4x256x16, .f32⟩ : BufTy).Contents (Elt F)),
    unary main_arg0 main_v286 ((extractStridedSlice S4x1x256 ![0, 14, 0] · slices_S4x512x256_S4x1x256_0_14_0) : (⟨S4x512x256, .f32⟩ : BufTy).Contents (Elt F) → (⟨S4x1x256, .f32⟩ : BufTy).Contents (Elt F)),
    reshape main_v286 main_v287 rfl shapeCasts_S4x1x256_S4x256,
    unary main_v287 main_v288 (broadcastInDim S4x256x1 ![0, 1] bcast_S4x256_S4x256x1_0_1 : (⟨S4x256, .f32⟩ : BufTy).Contents (Elt F) → (⟨S4x256x1, .f32⟩ : BufTy).Contents (Elt F)),
    unary main_arg2 main_v289 ((extractStridedSlice S4x1x16 ![0, 14, 0] · slices_S4x512x16_S4x1x16_0_14_0) : (⟨S4x512x16, .f32⟩ : BufTy).Contents (Elt F) → (⟨S4x1x16, .f32⟩ : BufTy).Contents (Elt F)),
    reshape main_v289 main_v290 rfl shapeCasts_S4x1x16_S4x16,
    unary main_v290 main_v291 (broadcastInDim S4x1x16 ![0, 2] bcast_S4x16_S4x1x16_0_2 : (⟨S4x16, .f32⟩ : BufTy).Contents (Elt F) → (⟨S4x1x16, .f32⟩ : BufTy).Contents (Elt F)),
    unary main_v288 main_v292 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v291 main_v293 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v292 main_v293 main_v294 (mulf : (⟨S4x256x16, .f32⟩ : BufTy).Contents (Elt F) → (⟨S4x256x16, .f32⟩ : BufTy).Contents (Elt F) → (⟨S4x256x16, .f32⟩ : BufTy).Contents (Elt F)),
    binary main_v285 main_v294 main_v295 (addf : (⟨S4x256x16, .f32⟩ : BufTy).Contents (Elt F) → (⟨S4x256x16, .f32⟩ : BufTy).Contents (Elt F) → (⟨S4x256x16, .f32⟩ : BufTy).Contents (Elt F)),
    unary main_arg3 main_v296 ((extractStridedSlice S4x1x16 ![0, 14, 0] · slices_S4x512x16_S4x1x16_0_14_0) : (⟨S4x512x16, .f32⟩ : BufTy).Contents (Elt F) → (⟨S4x1x16, .f32⟩ : BufTy).Contents (Elt F)),
    reshape main_v296 main_v297 rfl shapeCasts_S4x1x16_S4x16,
    unary main_v297 main_v298 (broadcastInDim S4x1x16 ![0, 2] bcast_S4x16_S4x1x16_0_2 : (⟨S4x16, .f32⟩ : BufTy).Contents (Elt F) → (⟨S4x1x16, .f32⟩ : BufTy).Contents (Elt F)),
    unary main_v298 main_v299 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v295 main_v299 main_v300 (mulf : (⟨S4x256x16, .f32⟩ : BufTy).Contents (Elt F) → (⟨S4x256x16, .f32⟩ : BufTy).Contents (Elt F) → (⟨S4x256x16, .f32⟩ : BufTy).Contents (Elt F)),
    nullary main_cst_28 (constant S_ .f32 0x00000000#32),
    binary main_v300 main_cst_28 main_v301 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_29 (constantI S_ 32 14#32),
    unary main_c_29 main_v302 (broadcastInDim S1 ![] bcast_S_S1 : (⟨S_, .i32⟩ : BufTy).Contents (Elt F) → (⟨S1, .i32⟩ : BufTy).Contents (Elt F)),
    ternary main_v283 main_v302 main_v301 main_v303 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps14_ok : (stepOps14 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step14_val (V : Valuation τ sig (Elt Ideal)) :
    after (stepOps14 (F := Ideal)) V (no_index (Proc.devRef .tc main_v295)) = stepH 14 (by decide) (V (Proc.devRef .tc main_arg0)) (V (Proc.devRef .tc main_v3)) (V (Proc.devRef .tc main_arg2)) (V (Proc.devRef .tc main_v275))
    ∧ after (stepOps14 (F := Ideal)) V (no_index (Proc.devRef .tc main_v303)) = stepY 14 (by decide) (V (Proc.devRef .tc main_arg3)) (stepH 14 (by decide) (V (Proc.devRef .tc main_arg0)) (V (Proc.devRef .tc main_v3)) (V (Proc.devRef .tc main_arg2)) (V (Proc.devRef .tc main_v275))) (V (Proc.devRef .tc main_v283)) := by
  simp only [stepOps14]
  after_results_simp
  first | exact ⟨rfl, rfl⟩ | fail "value"
/-- Step 15 of the loop: operations 337 … 358 of the program. -/
abbrev stepOps15 : List (HloOp τ sig (Elt F)) :=
  [ unary main_v3 main_v304 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v295 main_v304 main_v305 (mulf : (⟨S4x256x16, .f32⟩ : BufTy).Contents (Elt F) → (⟨S4x256x16, .f32⟩ : BufTy).Contents (Elt F) → (⟨S4x256x16, .f32⟩ : BufTy).Contents (Elt F)),
    unary main_arg0 main_v306 ((extractStridedSlice S4x1x256 ![0, 15, 0] · slices_S4x512x256_S4x1x256_0_15_0) : (⟨S4x512x256, .f32⟩ : BufTy).Contents (Elt F) → (⟨S4x1x256, .f32⟩ : BufTy).Contents (Elt F)),
    reshape main_v306 main_v307 rfl shapeCasts_S4x1x256_S4x256,
    unary main_v307 main_v308 (broadcastInDim S4x256x1 ![0, 1] bcast_S4x256_S4x256x1_0_1 : (⟨S4x256, .f32⟩ : BufTy).Contents (Elt F) → (⟨S4x256x1, .f32⟩ : BufTy).Contents (Elt F)),
    unary main_arg2 main_v309 ((extractStridedSlice S4x1x16 ![0, 15, 0] · slices_S4x512x16_S4x1x16_0_15_0) : (⟨S4x512x16, .f32⟩ : BufTy).Contents (Elt F) → (⟨S4x1x16, .f32⟩ : BufTy).Contents (Elt F)),
    reshape main_v309 main_v310 rfl shapeCasts_S4x1x16_S4x16,
    unary main_v310 main_v311 (broadcastInDim S4x1x16 ![0, 2] bcast_S4x16_S4x1x16_0_2 : (⟨S4x16, .f32⟩ : BufTy).Contents (Elt F) → (⟨S4x1x16, .f32⟩ : BufTy).Contents (Elt F)),
    unary main_v308 main_v312 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v311 main_v313 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v312 main_v313 main_v314 (mulf : (⟨S4x256x16, .f32⟩ : BufTy).Contents (Elt F) → (⟨S4x256x16, .f32⟩ : BufTy).Contents (Elt F) → (⟨S4x256x16, .f32⟩ : BufTy).Contents (Elt F)),
    binary main_v305 main_v314 main_v315 (addf : (⟨S4x256x16, .f32⟩ : BufTy).Contents (Elt F) → (⟨S4x256x16, .f32⟩ : BufTy).Contents (Elt F) → (⟨S4x256x16, .f32⟩ : BufTy).Contents (Elt F)),
    unary main_arg3 main_v316 ((extractStridedSlice S4x1x16 ![0, 15, 0] · slices_S4x512x16_S4x1x16_0_15_0) : (⟨S4x512x16, .f32⟩ : BufTy).Contents (Elt F) → (⟨S4x1x16, .f32⟩ : BufTy).Contents (Elt F)),
    reshape main_v316 main_v317 rfl shapeCasts_S4x1x16_S4x16,
    unary main_v317 main_v318 (broadcastInDim S4x1x16 ![0, 2] bcast_S4x16_S4x1x16_0_2 : (⟨S4x16, .f32⟩ : BufTy).Contents (Elt F) → (⟨S4x1x16, .f32⟩ : BufTy).Contents (Elt F)),
    unary main_v318 main_v319 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v315 main_v319 main_v320 (mulf : (⟨S4x256x16, .f32⟩ : BufTy).Contents (Elt F) → (⟨S4x256x16, .f32⟩ : BufTy).Contents (Elt F) → (⟨S4x256x16, .f32⟩ : BufTy).Contents (Elt F)),
    nullary main_cst_30 (constant S_ .f32 0x00000000#32),
    binary main_v320 main_cst_30 main_v321 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_31 (constantI S_ 32 15#32),
    unary main_c_31 main_v322 (broadcastInDim S1 ![] bcast_S_S1 : (⟨S_, .i32⟩ : BufTy).Contents (Elt F) → (⟨S1, .i32⟩ : BufTy).Contents (Elt F)),
    ternary main_v303 main_v322 main_v321 main_v323 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps15_ok : (stepOps15 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step15_val (V : Valuation τ sig (Elt Ideal)) :
    after (stepOps15 (F := Ideal)) V (no_index (Proc.devRef .tc main_v315)) = stepH 15 (by decide) (V (Proc.devRef .tc main_arg0)) (V (Proc.devRef .tc main_v3)) (V (Proc.devRef .tc main_arg2)) (V (Proc.devRef .tc main_v295))
    ∧ after (stepOps15 (F := Ideal)) V (no_index (Proc.devRef .tc main_v323)) = stepY 15 (by decide) (V (Proc.devRef .tc main_arg3)) (stepH 15 (by decide) (V (Proc.devRef .tc main_arg0)) (V (Proc.devRef .tc main_v3)) (V (Proc.devRef .tc main_arg2)) (V (Proc.devRef .tc main_v295))) (V (Proc.devRef .tc main_v303)) := by
  simp only [stepOps15]
  after_results_simp
  first | exact ⟨rfl, rfl⟩ | fail "value"

end Cert.ReferenceIdeal.RefRun

end
-- ==== Proof.RefTableStep01.lean ====
/-
  Steps 16 … 31 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 16 of the loop: operations 359 … 380 of the program. -/
abbrev stepOps16 : List (HloOp τ sig (Elt F)) :=
  [ unary main_v3 main_v324 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v315 main_v324 main_v325 (mulf : (⟨S4x256x16, .f32⟩ : BufTy).Contents (Elt F) → (⟨S4x256x16, .f32⟩ : BufTy).Contents (Elt F) → (⟨S4x256x16, .f32⟩ : BufTy).Contents (Elt F)),
    unary main_arg0 main_v326 ((extractStridedSlice S4x1x256 ![0, 16, 0] · slices_S4x512x256_S4x1x256_0_16_0) : (⟨S4x512x256, .f32⟩ : BufTy).Contents (Elt F) → (⟨S4x1x256, .f32⟩ : BufTy).Contents (Elt F)),
    reshape main_v326 main_v327 rfl shapeCasts_S4x1x256_S4x256,
    unary main_v327 main_v328 (broadcastInDim S4x256x1 ![0, 1] bcast_S4x256_S4x256x1_0_1 : (⟨S4x256, .f32⟩ : BufTy).Contents (Elt F) → (⟨S4x256x1, .f32⟩ : BufTy).Contents (Elt F)),
    unary main_arg2 main_v329 ((extractStridedSlice S4x1x16 ![0, 16, 0] · slices_S4x512x16_S4x1x16_0_16_0) : (⟨S4x512x16, .f32⟩ : BufTy).Contents (Elt F) → (⟨S4x1x16, .f32⟩ : BufTy).Contents (Elt F)),
    reshape main_v329 main_v330 rfl shapeCasts_S4x1x16_S4x16,
    unary main_v330 main_v331 (broadcastInDim S4x1x16 ![0, 2] bcast_S4x16_S4x1x16_0_2 : (⟨S4x16, .f32⟩ : BufTy).Contents (Elt F) → (⟨S4x1x16, .f32⟩ : BufTy).Contents (Elt F)),
    unary main_v328 main_v332 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v331 main_v333 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v332 main_v333 main_v334 (mulf : (⟨S4x256x16, .f32⟩ : BufTy).Contents (Elt F) → (⟨S4x256x16, .f32⟩ : BufTy).Contents (Elt F) → (⟨S4x256x16, .f32⟩ : BufTy).Contents (Elt F)),
    binary main_v325 main_v334 main_v335 (addf : (⟨S4x256x16, .f32⟩ : BufTy).Contents (Elt F) → (⟨S4x256x16, .f32⟩ : BufTy).Contents (Elt F) → (⟨S4x256x16, .f32⟩ : BufTy).Contents (Elt F)),
    unary main_arg3 main_v336 ((extractStridedSlice S4x1x16 ![0, 16, 0] · slices_S4x512x16_S4x1x16_0_16_0) : (⟨S4x512x16, .f32⟩ : BufTy).Contents (Elt F) → (⟨S4x1x16, .f32⟩ : BufTy).Contents (Elt F)),
    reshape main_v336 main_v337 rfl shapeCasts_S4x1x16_S4x16,
    unary main_v337 main_v338 (broadcastInDim S4x1x16 ![0, 2] bcast_S4x16_S4x1x16_0_2 : (⟨S4x16, .f32⟩ : BufTy).Contents (Elt F) → (⟨S4x1x16, .f32⟩ : BufTy).Contents (Elt F)),
    unary main_v338 main_v339 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v335 main_v339 main_v340 (mulf : (⟨S4x256x16, .f32⟩ : BufTy).Contents (Elt F) → (⟨S4x256x16, .f32⟩ : BufTy).Contents (Elt F) → (⟨S4x256x16, .f32⟩ : BufTy).Contents (Elt F)),
    nullary main_cst_32 (constant S_ .f32 0x00000000#32),
    binary main_v340 main_cst_32 main_v341 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_33 (constantI S_ 32 16#32),
    unary main_c_33 main_v342 (broadcastInDim S1 ![] bcast_S_S1 : (⟨S_, .i32⟩ : BufTy).Contents (Elt F) → (⟨S1, .i32⟩ : BufTy).Contents (Elt F)),
    ternary main_v323 main_v342 main_v341 main_v343 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps16_ok : (stepOps16 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step16_val (V : Valuation τ sig (Elt Ideal)) :
    after (stepOps16 (F := Ideal)) V (no_index (Proc.devRef .tc main_v335)) = stepH 16 (by decide) (V (Proc.devRef .tc main_arg0)) (V (Proc.devRef .tc main_v3)) (V (Proc.devRef .tc main_arg2)) (V (Proc.devRef .tc main_v315))
    ∧ after (stepOps16 (F := Ideal)) V (no_index (Proc.devRef .tc main_v343)) = stepY 16 (by decide) (V (Proc.devRef .tc main_arg3)) (stepH 16 (by decide) (V (Proc.devRef .tc main_arg0)) (V (Proc.devRef .tc main_v3)) (V (Proc.devRef .tc main_arg2)) (V (Proc.devRef .tc main_v315))) (V (Proc.devRef .tc main_v323)) := by
  simp only [stepOps16]
  after_results_simp
  first | exact ⟨rfl, rfl⟩ | fail "value"
/-- Step 17 of the loop: operations 381 … 402 of the program. -/
abbrev stepOps17 : List (HloOp τ sig (Elt F)) :=
  [ unary main_v3 main_v344 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v335 main_v344 main_v345 (mulf : (⟨S4x256x16, .f32⟩ : BufTy).Contents (Elt F) → (⟨S4x256x16, .f32⟩ : BufTy).Contents (Elt F) → (⟨S4x256x16, .f32⟩ : BufTy).Contents (Elt F)),
    unary main_arg0 main_v346 ((extractStridedSlice S4x1x256 ![0, 17, 0] · slices_S4x512x256_S4x1x256_0_17_0) : (⟨S4x512x256, .f32⟩ : BufTy).Contents (Elt F) → (⟨S4x1x256, .f32⟩ : BufTy).Contents (Elt F)),
    reshape main_v346 main_v347 rfl shapeCasts_S4x1x256_S4x256,
    unary main_v347 main_v348 (broadcastInDim S4x256x1 ![0, 1] bcast_S4x256_S4x256x1_0_1 : (⟨S4x256, .f32⟩ : BufTy).Contents (Elt F) → (⟨S4x256x1, .f32⟩ : BufTy).Contents (Elt F)),
    unary main_arg2 main_v349 ((extractStridedSlice S4x1x16 ![0, 17, 0] · slices_S4x512x16_S4x1x16_0_17_0) : (⟨S4x512x16, .f32⟩ : BufTy).Contents (Elt F) → (⟨S4x1x16, .f32⟩ : BufTy).Contents (Elt F)),
    reshape main_v349 main_v350 rfl shapeCasts_S4x1x16_S4x16,
    unary main_v350 main_v351 (broadcastInDim S4x1x16 ![0, 2] bcast_S4x16_S4x1x16_0_2 : (⟨S4x16, .f32⟩ : BufTy).Contents (Elt F) → (⟨S4x1x16, .f32⟩ : BufTy).Contents (Elt F)),
    unary main_v348 main_v352 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v351 main_v353 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v352 main_v353 main_v354 (mulf : (⟨S4x256x16, .f32⟩ : BufTy).Contents (Elt F) → (⟨S4x256x16, .f32⟩ : BufTy).Contents (Elt F) → (⟨S4x256x16, .f32⟩ : BufTy).Contents (Elt F)),
    binary main_v345 main_v354 main_v355 (addf : (⟨S4x256x16, .f32⟩ : BufTy).Contents (Elt F) → (⟨S4x256x16, .f32⟩ : BufTy).Contents (Elt F) → (⟨S4x256x16, .f32⟩ : BufTy).Contents (Elt F)),
    unary main_arg3 main_v356 ((extractStridedSlice S4x1x16 ![0, 17, 0] · slices_S4x512x16_S4x1x16_0_17_0) : (⟨S4x512x16, .f32⟩ : BufTy).Contents (Elt F) → (⟨S4x1x16, .f32⟩ : BufTy).Contents (Elt F)),
    reshape main_v356 main_v357 rfl shapeCasts_S4x1x16_S4x16,
    unary main_v357 main_v358 (broadcastInDim S4x1x16 ![0, 2] bcast_S4x16_S4x1x16_0_2 : (⟨S4x16, .f32⟩ : BufTy).Contents (Elt F) → (⟨S4x1x16, .f32⟩ : BufTy).Contents (Elt F)),
    unary main_v358 main_v359 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v355 main_v359 main_v360 (mulf : (⟨S4x256x16, .f32⟩ : BufTy).Contents (Elt F) → (⟨S4x256x16, .f32⟩ : BufTy).Contents (Elt F) → (⟨S4x256x16, .f32⟩ : BufTy).Contents (Elt F)),
    nullary main_cst_34 (constant S_ .f32 0x00000000#32),
    binary main_v360 main_cst_34 main_v361 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_35 (constantI S_ 32 17#32),
    unary main_c_35 main_v362 (broadcastInDim S1 ![] bcast_S_S1 : (⟨S_, .i32⟩ : BufTy).Contents (Elt F) → (⟨S1, .i32⟩ : BufTy).Contents (Elt F)),
    ternary main_v343 main_v362 main_v361 main_v363 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps17_ok : (stepOps17 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step17_val (V : Valuation τ sig (Elt Ideal)) :
    after (stepOps17 (F := Ideal)) V (no_index (Proc.devRef .tc main_v355)) = stepH 17 (by decide) (V (Proc.devRef .tc main_arg0)) (V (Proc.devRef .tc main_v3)) (V (Proc.devRef .tc main_arg2)) (V (Proc.devRef .tc main_v335))
    ∧ after (stepOps17 (F := Ideal)) V (no_index (Proc.devRef .tc main_v363)) = stepY 17 (by decide) (V (Proc.devRef .tc main_arg3)) (stepH 17 (by decide) (V (Proc.devRef .tc main_arg0)) (V (Proc.devRef .tc main_v3)) (V (Proc.devRef .tc main_arg2)) (V (Proc.devRef .tc main_v335))) (V (Proc.devRef .tc main_v343)) := by
  simp only [stepOps17]
  after_results_simp
  first | exact ⟨rfl, rfl⟩ | fail "value"
/-- Step 18 of the loop: operations 403 … 424 of the program. -/
abbrev stepOps18 : List (HloOp τ sig (Elt F)) :=
  [ unary main_v3 main_v364 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v355 main_v364 main_v365 (mulf : (⟨S4x256x16, .f32⟩ : BufTy).Contents (Elt F) → (⟨S4x256x16, .f32⟩ : BufTy).Contents (Elt F) → (⟨S4x256x16, .f32⟩ : BufTy).Contents (Elt F)),
    unary main_arg0 main_v366 ((extractStridedSlice S4x1x256 ![0, 18, 0] · slices_S4x512x256_S4x1x256_0_18_0) : (⟨S4x512x256, .f32⟩ : BufTy).Contents (Elt F) → (⟨S4x1x256, .f32⟩ : BufTy).Contents (Elt F)),
    reshape main_v366 main_v367 rfl shapeCasts_S4x1x256_S4x256,
    unary main_v367 main_v368 (broadcastInDim S4x256x1 ![0, 1] bcast_S4x256_S4x256x1_0_1 : (⟨S4x256, .f32⟩ : BufTy).Contents (Elt F) → (⟨S4x256x1, .f32⟩ : BufTy).Contents (Elt F)),
    unary main_arg2 main_v369 ((extractStridedSlice S4x1x16 ![0, 18, 0] · slices_S4x512x16_S4x1x16_0_18_0) : (⟨S4x512x16, .f32⟩ : BufTy).Contents (Elt F) → (⟨S4x1x16, .f32⟩ : BufTy).Contents (Elt F)),
    reshape main_v369 main_v370 rfl shapeCasts_S4x1x16_S4x16,
    unary main_v370 main_v371 (broadcastInDim S4x1x16 ![0, 2] bcast_S4x16_S4x1x16_0_2 : (⟨S4x16, .f32⟩ : BufTy).Contents (Elt F) → (⟨S4x1x16, .f32⟩ : BufTy).Contents (Elt F)),
    unary main_v368 main_v372 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v371 main_v373 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v372 main_v373 main_v374 (mulf : (⟨S4x256x16, .f32⟩ : BufTy).Contents (Elt F) → (⟨S4x256x16, .f32⟩ : BufTy).Contents (Elt F) → (⟨S4x256x16, .f32⟩ : BufTy).Contents (Elt F)),
    binary main_v365 main_v374 main_v375 (addf : (⟨S4x256x16, .f32⟩ : BufTy).Contents (Elt F) → (⟨S4x256x16, .f32⟩ : BufTy).Contents (Elt F) → (⟨S4x256x16, .f32⟩ : BufTy).Contents (Elt F)),
    unary main_arg3 main_v376 ((extractStridedSlice S4x1x16 ![0, 18, 0] · slices_S4x512x16_S4x1x16_0_18_0) : (⟨S4x512x16, .f32⟩ : BufTy).Contents (Elt F) → (⟨S4x1x16, .f32⟩ : BufTy).Contents (Elt F)),
    reshape main_v376 main_v377 rfl shapeCasts_S4x1x16_S4x16,
    unary main_v377 main_v378 (broadcastInDim S4x1x16 ![0, 2] bcast_S4x16_S4x1x16_0_2 : (⟨S4x16, .f32⟩ : BufTy).Contents (Elt F) → (⟨S4x1x16, .f32⟩ : BufTy).Contents (Elt F)),
    unary main_v378 main_v379 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v375 main_v379 main_v380 (mulf : (⟨S4x256x16, .f32⟩ : BufTy).Contents (Elt F) → (⟨S4x256x16, .f32⟩ : BufTy).Contents (Elt F) → (⟨S4x256x16, .f32⟩ : BufTy).Contents (Elt F)),
    nullary main_cst_36 (constant S_ .f32 0x00000000#32),
    binary main_v380 main_cst_36 main_v381 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_37 (constantI S_ 32 18#32),
    unary main_c_37 main_v382 (broadcastInDim S1 ![] bcast_S_S1 : (⟨S_, .i32⟩ : BufTy).Contents (Elt F) → (⟨S1, .i32⟩ : BufTy).Contents (Elt F)),
    ternary main_v363 main_v382 main_v381 main_v383 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps18_ok : (stepOps18 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step18_val (V : Valuation τ sig (Elt Ideal)) :
    after (stepOps18 (F := Ideal)) V (no_index (Proc.devRef .tc main_v375)) = stepH 18 (by decide) (V (Proc.devRef .tc main_arg0)) (V (Proc.devRef .tc main_v3)) (V (Proc.devRef .tc main_arg2)) (V (Proc.devRef .tc main_v355))
    ∧ after (stepOps18 (F := Ideal)) V (no_index (Proc.devRef .tc main_v383)) = stepY 18 (by decide) (V (Proc.devRef .tc main_arg3)) (stepH 18 (by decide) (V (Proc.devRef .tc main_arg0)) (V (Proc.devRef .tc main_v3)) (V (Proc.devRef .tc main_arg2)) (V (Proc.devRef .tc main_v355))) (V (Proc.devRef .tc main_v363)) := by
  simp only [stepOps18]
  after_results_simp
  first | exact ⟨rfl, rfl⟩ | fail "value"
/-- Step 19 of the loop: operations 425 … 446 of the program. -/
abbrev stepOps19 : List (HloOp τ sig (Elt F)) :=
  [ unary main_v3 main_v384 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v375 main_v384 main_v385 (mulf : (⟨S4x256x16, .f32⟩ : BufTy).Contents (Elt F) → (⟨S4x256x16, .f32⟩ : BufTy).Contents (Elt F) → (⟨S4x256x16, .f32⟩ : BufTy).Contents (Elt F)),
    unary main_arg0 main_v386 ((extractStridedSlice S4x1x256 ![0, 19, 0] · slices_S4x512x256_S4x1x256_0_19_0) : (⟨S4x512x256, .f32⟩ : BufTy).Contents (Elt F) → (⟨S4x1x256, .f32⟩ : BufTy).Contents (Elt F)),
    reshape main_v386 main_v387 rfl shapeCasts_S4x1x256_S4x256,
    unary main_v387 main_v388 (broadcastInDim S4x256x1 ![0, 1] bcast_S4x256_S4x256x1_0_1 : (⟨S4x256, .f32⟩ : BufTy).Contents (Elt F) → (⟨S4x256x1, .f32⟩ : BufTy).Contents (Elt F)),
    unary main_arg2 main_v389 ((extractStridedSlice S4x1x16 ![0, 19, 0] · slices_S4x512x16_S4x1x16_0_19_0) : (⟨S4x512x16, .f32⟩ : BufTy).Contents (Elt F) → (⟨S4x1x16, .f32⟩ : BufTy).Contents (Elt F)),
    reshape main_v389 main_v390 rfl shapeCasts_S4x1x16_S4x16,
    unary main_v390 main_v391 (broadcastInDim S4x1x16 ![0, 2] bcast_S4x16_S4x1x16_0_2 : (⟨S4x16, .f32⟩ : BufTy).Contents (Elt F) → (⟨S4x1x16, .f32⟩ : BufTy).Contents (Elt F)),
    unary main_v388 main_v392 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v391 main_v393 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v392 main_v393 main_v394 (mulf : (⟨S4x256x16, .f32⟩ : BufTy).Contents (Elt F) → (⟨S4x256x16, .f32⟩ : BufTy).Contents (Elt F) → (⟨S4x256x16, .f32⟩ : BufTy).Contents (Elt F)),
    binary main_v385 main_v394 main_v395 (addf : (⟨S4x256x16, .f32⟩ : BufTy).Contents (Elt F) → (⟨S4x256x16, .f32⟩ : BufTy).Contents (Elt F) → (⟨S4x256x16, .f32⟩ : BufTy).Contents (Elt F)),
    unary main_arg3 main_v396 ((extractStridedSlice S4x1x16 ![0, 19, 0] · slices_S4x512x16_S4x1x16_0_19_0) : (⟨S4x512x16, .f32⟩ : BufTy).Contents (Elt F) → (⟨S4x1x16, .f32⟩ : BufTy).Contents (Elt F)),
    reshape main_v396 main_v397 rfl shapeCasts_S4x1x16_S4x16,
    unary main_v397 main_v398 (broadcastInDim S4x1x16 ![0, 2] bcast_S4x16_S4x1x16_0_2 : (⟨S4x16, .f32⟩ : BufTy).Contents (Elt F) → (⟨S4x1x16, .f32⟩ : BufTy).Contents (Elt F)),
    unary main_v398 main_v399 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v395 main_v399 main_v400 (mulf : (⟨S4x256x16, .f32⟩ : BufTy).Contents (Elt F) → (⟨S4x256x16, .f32⟩ : BufTy).Contents (Elt F) → (⟨S4x256x16, .f32⟩ : BufTy).Contents (Elt F)),
    nullary main_cst_38 (constant S_ .f32 0x00000000#32),
    binary main_v400 main_cst_38 main_v401 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_39 (constantI S_ 32 19#32),
    unary main_c_39 main_v402 (broadcastInDim S1 ![] bcast_S_S1 : (⟨S_, .i32⟩ : BufTy).Contents (Elt F) → (⟨S1, .i32⟩ : BufTy).Contents (Elt F)),
    ternary main_v383 main_v402 main_v401 main_v403 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps19_ok : (stepOps19 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step19_val (V : Valuation τ sig (Elt Ideal)) :
    after (stepOps19 (F := Ideal)) V (no_index (Proc.devRef .tc main_v395)) = stepH 19 (by decide) (V (Proc.devRef .tc main_arg0)) (V (Proc.devRef .tc main_v3)) (V (Proc.devRef .tc main_arg2)) (V (Proc.devRef .tc main_v375))
    ∧ after (stepOps19 (F := Ideal)) V (no_index (Proc.devRef .tc main_v403)) = stepY 19 (by decide) (V (Proc.devRef .tc main_arg3)) (stepH 19 (by decide) (V (Proc.devRef .tc main_arg0)) (V (Proc.devRef .tc main_v3)) (V (Proc.devRef .tc main_arg2)) (V (Proc.devRef .tc main_v375))) (V (Proc.devRef .tc main_v383)) := by
  simp only [stepOps19]
  after_results_simp
  first | exact ⟨rfl, rfl⟩ | fail "value"
/-- Step 20 of the loop: operations 447 … 468 of the program. -/
abbrev stepOps20 : List (HloOp τ sig (Elt F)) :=
  [ unary main_v3 main_v404 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v395 main_v404 main_v405 (mulf : (⟨S4x256x16, .f32⟩ : BufTy).Contents (Elt F) → (⟨S4x256x16, .f32⟩ : BufTy).Contents (Elt F) → (⟨S4x256x16, .f32⟩ : BufTy).Contents (Elt F)),
    unary main_arg0 main_v406 ((extractStridedSlice S4x1x256 ![0, 20, 0] · slices_S4x512x256_S4x1x256_0_20_0) : (⟨S4x512x256, .f32⟩ : BufTy).Contents (Elt F) → (⟨S4x1x256, .f32⟩ : BufTy).Contents (Elt F)),
    reshape main_v406 main_v407 rfl shapeCasts_S4x1x256_S4x256,
    unary main_v407 main_v408 (broadcastInDim S4x256x1 ![0, 1] bcast_S4x256_S4x256x1_0_1 : (⟨S4x256, .f32⟩ : BufTy).Contents (Elt F) → (⟨S4x256x1, .f32⟩ : BufTy).Contents (Elt F)),
    unary main_arg2 main_v409 ((extractStridedSlice S4x1x16 ![0, 20, 0] · slices_S4x512x16_S4x1x16_0_20_0) : (⟨S4x512x16, .f32⟩ : BufTy).Contents (Elt F) → (⟨S4x1x16, .f32⟩ : BufTy).Contents (Elt F)),
    reshape main_v409 main_v410 rfl shapeCasts_S4x1x16_S4x16,
    unary main_v410 main_v411 (broadcastInDim S4x1x16 ![0, 2] bcast_S4x16_S4x1x16_0_2 : (⟨S4x16, .f32⟩ : BufTy).Contents (Elt F) → (⟨S4x1x16, .f32⟩ : BufTy).Contents (Elt F)),
    unary main_v408 main_v412 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v411 main_v413 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v412 main_v413 main_v414 (mulf : (⟨S4x256x16, .f32⟩ : BufTy).Contents (Elt F) → (⟨S4x256x16, .f32⟩ : BufTy).Contents (Elt F) → (⟨S4x256x16, .f32⟩ : BufTy).Contents (Elt F)),
    binary main_v405 main_v414 main_v415 (addf : (⟨S4x256x16, .f32⟩ : BufTy).Contents (Elt F) → (⟨S4x256x16, .f32⟩ : BufTy).Contents (Elt F) → (⟨S4x256x16, .f32⟩ : BufTy).Contents (Elt F)),
    unary main_arg3 main_v416 ((extractStridedSlice S4x1x16 ![0, 20, 0] · slices_S4x512x16_S4x1x16_0_20_0) : (⟨S4x512x16, .f32⟩ : BufTy).Contents (Elt F) → (⟨S4x1x16, .f32⟩ : BufTy).Contents (Elt F)),
    reshape main_v416 main_v417 rfl shapeCasts_S4x1x16_S4x16,
    unary main_v417 main_v418 (broadcastInDim S4x1x16 ![0, 2] bcast_S4x16_S4x1x16_0_2 : (⟨S4x16, .f32⟩ : BufTy).Contents (Elt F) → (⟨S4x1x16, .f32⟩ : BufTy).Contents (Elt F)),
    unary main_v418 main_v419 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v415 main_v419 main_v420 (mulf : (⟨S4x256x16, .f32⟩ : BufTy).Contents (Elt F) → (⟨S4x256x16, .f32⟩ : BufTy).Contents (Elt F) → (⟨S4x256x16, .f32⟩ : BufTy).Contents (Elt F)),
    nullary main_cst_40 (constant S_ .f32 0x00000000#32),
    binary main_v420 main_cst_40 main_v421 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_41 (constantI S_ 32 20#32),
    unary main_c_41 main_v422 (broadcastInDim S1 ![] bcast_S_S1 : (⟨S_, .i32⟩ : BufTy).Contents (Elt F) → (⟨S1, .i32⟩ : BufTy).Contents (Elt F)),
    ternary main_v403 main_v422 main_v421 main_v423 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps20_ok : (stepOps20 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step20_val (V : Valuation τ sig (Elt Ideal)) :
    after (stepOps20 (F := Ideal)) V (no_index (Proc.devRef .tc main_v415)) = stepH 20 (by decide) (V (Proc.devRef .tc main_arg0)) (V (Proc.devRef .tc main_v3)) (V (Proc.devRef .tc main_arg2)) (V (Proc.devRef .tc main_v395))
    ∧ after (stepOps20 (F := Ideal)) V (no_index (Proc.devRef .tc main_v423)) = stepY 20 (by decide) (V (Proc.devRef .tc main_arg3)) (stepH 20 (by decide) (V (Proc.devRef .tc main_arg0)) (V (Proc.devRef .tc main_v3)) (V (Proc.devRef .tc main_arg2)) (V (Proc.devRef .tc main_v395))) (V (Proc.devRef .tc main_v403)) := by
  simp only [stepOps20]
  after_results_simp
  first | exact ⟨rfl, rfl⟩ | fail "value"
/-- Step 21 of the loop: operations 469 … 490 of the program. -/
abbrev stepOps21 : List (HloOp τ sig (Elt F)) :=
  [ unary main_v3 main_v424 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v415 main_v424 main_v425 (mulf : (⟨S4x256x16, .f32⟩ : BufTy).Contents (Elt F) → (⟨S4x256x16, .f32⟩ : BufTy).Contents (Elt F) → (⟨S4x256x16, .f32⟩ : BufTy).Contents (Elt F)),
    unary main_arg0 main_v426 ((extractStridedSlice S4x1x256 ![0, 21, 0] · slices_S4x512x256_S4x1x256_0_21_0) : (⟨S4x512x256, .f32⟩ : BufTy).Contents (Elt F) → (⟨S4x1x256, .f32⟩ : BufTy).Contents (Elt F)),
    reshape main_v426 main_v427 rfl shapeCasts_S4x1x256_S4x256,
    unary main_v427 main_v428 (broadcastInDim S4x256x1 ![0, 1] bcast_S4x256_S4x256x1_0_1 : (⟨S4x256, .f32⟩ : BufTy).Contents (Elt F) → (⟨S4x256x1, .f32⟩ : BufTy).Contents (Elt F)),
    unary main_arg2 main_v429 ((extractStridedSlice S4x1x16 ![0, 21, 0] · slices_S4x512x16_S4x1x16_0_21_0) : (⟨S4x512x16, .f32⟩ : BufTy).Contents (Elt F) → (⟨S4x1x16, .f32⟩ : BufTy).Contents (Elt F)),
    reshape main_v429 main_v430 rfl shapeCasts_S4x1x16_S4x16,
    unary main_v430 main_v431 (broadcastInDim S4x1x16 ![0, 2] bcast_S4x16_S4x1x16_0_2 : (⟨S4x16, .f32⟩ : BufTy).Contents (Elt F) → (⟨S4x1x16, .f32⟩ : BufTy).Contents (Elt F)),
    unary main_v428 main_v432 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v431 main_v433 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v432 main_v433 main_v434 (mulf : (⟨S4x256x16, .f32⟩ : BufTy).Contents (Elt F) → (⟨S4x256x16, .f32⟩ : BufTy).Contents (Elt F) → (⟨S4x256x16, .f32⟩ : BufTy).Contents (Elt F)),
    binary main_v425 main_v434 main_v435 (addf : (⟨S4x256x16, .f32⟩ : BufTy).Contents (Elt F) → (⟨S4x256x16, .f32⟩ : BufTy).Contents (Elt F) → (⟨S4x256x16, .f32⟩ : BufTy).Contents (Elt F)),
    unary main_arg3 main_v436 ((extractStridedSlice S4x1x16 ![0, 21, 0] · slices_S4x512x16_S4x1x16_0_21_0) : (⟨S4x512x16, .f32⟩ : BufTy).Contents (Elt F) → (⟨S4x1x16, .f32⟩ : BufTy).Contents (Elt F)),
    reshape main_v436 main_v437 rfl shapeCasts_S4x1x16_S4x16,
    unary main_v437 main_v438 (broadcastInDim S4x1x16 ![0, 2] bcast_S4x16_S4x1x16_0_2 : (⟨S4x16, .f32⟩ : BufTy).Contents (Elt F) → (⟨S4x1x16, .f32⟩ : BufTy).Contents (Elt F)),
    unary main_v438 main_v439 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v435 main_v439 main_v440 (mulf : (⟨S4x256x16, .f32⟩ : BufTy).Contents (Elt F) → (⟨S4x256x16, .f32⟩ : BufTy).Contents (Elt F) → (⟨S4x256x16, .f32⟩ : BufTy).Contents (Elt F)),
    nullary main_cst_42 (constant S_ .f32 0x00000000#32),
    binary main_v440 main_cst_42 main_v441 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_43 (constantI S_ 32 21#32),
    unary main_c_43 main_v442 (broadcastInDim S1 ![] bcast_S_S1 : (⟨S_, .i32⟩ : BufTy).Contents (Elt F) → (⟨S1, .i32⟩ : BufTy).Contents (Elt F)),
    ternary main_v423 main_v442 main_v441 main_v443 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps21_ok : (stepOps21 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step21_val (V : Valuation τ sig (Elt Ideal)) :
    after (stepOps21 (F := Ideal)) V (no_index (Proc.devRef .tc main_v435)) = stepH 21 (by decide) (V (Proc.devRef .tc main_arg0)) (V (Proc.devRef .tc main_v3)) (V (Proc.devRef .tc main_arg2)) (V (Proc.devRef .tc main_v415))
    ∧ after (stepOps21 (F := Ideal)) V (no_index (Proc.devRef .tc main_v443)) = stepY 21 (by decide) (V (Proc.devRef .tc main_arg3)) (stepH 21 (by decide) (V (Proc.devRef .tc main_arg0)) (V (Proc.devRef .tc main_v3)) (V (Proc.devRef .tc main_arg2)) (V (Proc.devRef .tc main_v415))) (V (Proc.devRef .tc main_v423)) := by
  simp only [stepOps21]
  after_results_simp
  first | exact ⟨rfl, rfl⟩ | fail "value"
/-- Step 22 of the loop: operations 491 … 512 of the program. -/
abbrev stepOps22 : List (HloOp τ sig (Elt F)) :=
  [ unary main_v3 main_v444 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v435 main_v444 main_v445 (mulf : (⟨S4x256x16, .f32⟩ : BufTy).Contents (Elt F) → (⟨S4x256x16, .f32⟩ : BufTy).Contents (Elt F) → (⟨S4x256x16, .f32⟩ : BufTy).Contents (Elt F)),
    unary main_arg0 main_v446 ((extractStridedSlice S4x1x256 ![0, 22, 0] · slices_S4x512x256_S4x1x256_0_22_0) : (⟨S4x512x256, .f32⟩ : BufTy).Contents (Elt F) → (⟨S4x1x256, .f32⟩ : BufTy).Contents (Elt F)),
    reshape main_v446 main_v447 rfl shapeCasts_S4x1x256_S4x256,
    unary main_v447 main_v448 (broadcastInDim S4x256x1 ![0, 1] bcast_S4x256_S4x256x1_0_1 : (⟨S4x256, .f32⟩ : BufTy).Contents (Elt F) → (⟨S4x256x1, .f32⟩ : BufTy).Contents (Elt F)),
    unary main_arg2 main_v449 ((extractStridedSlice S4x1x16 ![0, 22, 0] · slices_S4x512x16_S4x1x16_0_22_0) : (⟨S4x512x16, .f32⟩ : BufTy).Contents (Elt F) → (⟨S4x1x16, .f32⟩ : BufTy).Contents (Elt F)),
    reshape main_v449 main_v450 rfl shapeCasts_S4x1x16_S4x16,
    unary main_v450 main_v451 (broadcastInDim S4x1x16 ![0, 2] bcast_S4x16_S4x1x16_0_2 : (⟨S4x16, .f32⟩ : BufTy).Contents (Elt F) → (⟨S4x1x16, .f32⟩ : BufTy).Contents (Elt F)),
    unary main_v448 main_v452 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v451 main_v453 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v452 main_v453 main_v454 (mulf : (⟨S4x256x16, .f32⟩ : BufTy).Contents (Elt F) → (⟨S4x256x16, .f32⟩ : BufTy).Contents (Elt F) → (⟨S4x256x16, .f32⟩ : BufTy).Contents (Elt F)),
    binary main_v445 main_v454 main_v455 (addf : (⟨S4x256x16, .f32⟩ : BufTy).Contents (Elt F) → (⟨S4x256x16, .f32⟩ : BufTy).Contents (Elt F) → (⟨S4x256x16, .f32⟩ : BufTy).Contents (Elt F)),
    unary main_arg3 main_v456 ((extractStridedSlice S4x1x16 ![0, 22, 0] · slices_S4x512x16_S4x1x16_0_22_0) : (⟨S4x512x16, .f32⟩ : BufTy).Contents (Elt F) → (⟨S4x1x16, .f32⟩ : BufTy).Contents (Elt F)),
    reshape main_v456 main_v457 rfl shapeCasts_S4x1x16_S4x16,
    unary main_v457 main_v458 (broadcastInDim S4x1x16 ![0, 2] bcast_S4x16_S4x1x16_0_2 : (⟨S4x16, .f32⟩ : BufTy).Contents (Elt F) → (⟨S4x1x16, .f32⟩ : BufTy).Contents (Elt F)),
    unary main_v458 main_v459 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v455 main_v459 main_v460 (mulf : (⟨S4x256x16, .f32⟩ : BufTy).Contents (Elt F) → (⟨S4x256x16, .f32⟩ : BufTy).Contents (Elt F) → (⟨S4x256x16, .f32⟩ : BufTy).Contents (Elt F)),
    nullary main_cst_44 (constant S_ .f32 0x00000000#32),
    binary main_v460 main_cst_44 main_v461 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_45 (constantI S_ 32 22#32),
    unary main_c_45 main_v462 (broadcastInDim S1 ![] bcast_S_S1 : (⟨S_, .i32⟩ : BufTy).Contents (Elt F) → (⟨S1, .i32⟩ : BufTy).Contents (Elt F)),
    ternary main_v443 main_v462 main_v461 main_v463 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps22_ok : (stepOps22 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step22_val (V : Valuation τ sig (Elt Ideal)) :
    after (stepOps22 (F := Ideal)) V (no_index (Proc.devRef .tc main_v455)) = stepH 22 (by decide) (V (Proc.devRef .tc main_arg0)) (V (Proc.devRef .tc main_v3)) (V (Proc.devRef .tc main_arg2)) (V (Proc.devRef .tc main_v435))
    ∧ after (stepOps22 (F := Ideal)) V (no_index (Proc.devRef .tc main_v463)) = stepY 22 (by decide) (V (Proc.devRef .tc main_arg3)) (stepH 22 (by decide) (V (Proc.devRef .tc main_arg0)) (V (Proc.devRef .tc main_v3)) (V (Proc.devRef .tc main_arg2)) (V (Proc.devRef .tc main_v435))) (V (Proc.devRef .tc main_v443)) := by
  simp only [stepOps22]
  after_results_simp
  first | exact ⟨rfl, rfl⟩ | fail "value"
/-- Step 23 of the loop: operations 513 … 534 of the program. -/
abbrev stepOps23 : List (HloOp τ sig (Elt F)) :=
  [ unary main_v3 main_v464 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v455 main_v464 main_v465 (mulf : (⟨S4x256x16, .f32⟩ : BufTy).Contents (Elt F) → (⟨S4x256x16, .f32⟩ : BufTy).Contents (Elt F) → (⟨S4x256x16, .f32⟩ : BufTy).Contents (Elt F)),
    unary main_arg0 main_v466 ((extractStridedSlice S4x1x256 ![0, 23, 0] · slices_S4x512x256_S4x1x256_0_23_0) : (⟨S4x512x256, .f32⟩ : BufTy).Contents (Elt F) → (⟨S4x1x256, .f32⟩ : BufTy).Contents (Elt F)),
    reshape main_v466 main_v467 rfl shapeCasts_S4x1x256_S4x256,
    unary main_v467 main_v468 (broadcastInDim S4x256x1 ![0, 1] bcast_S4x256_S4x256x1_0_1 : (⟨S4x256, .f32⟩ : BufTy).Contents (Elt F) → (⟨S4x256x1, .f32⟩ : BufTy).Contents (Elt F)),
    unary main_arg2 main_v469 ((extractStridedSlice S4x1x16 ![0, 23, 0] · slices_S4x512x16_S4x1x16_0_23_0) : (⟨S4x512x16, .f32⟩ : BufTy).Contents (Elt F) → (⟨S4x1x16, .f32⟩ : BufTy).Contents (Elt F)),
    reshape main_v469 main_v470 rfl shapeCasts_S4x1x16_S4x16,
    unary main_v470 main_v471 (broadcastInDim S4x1x16 ![0, 2] bcast_S4x16_S4x1x16_0_2 : (⟨S4x16, .f32⟩ : BufTy).Contents (Elt F) → (⟨S4x1x16, .f32⟩ : BufTy).Contents (Elt F)),
    unary main_v468 main_v472 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v471 main_v473 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v472 main_v473 main_v474 (mulf : (⟨S4x256x16, .f32⟩ : BufTy).Contents (Elt F) → (⟨S4x256x16, .f32⟩ : BufTy).Contents (Elt F) → (⟨S4x256x16, .f32⟩ : BufTy).Contents (Elt F)),
    binary main_v465 main_v474 main_v475 (addf : (⟨S4x256x16, .f32⟩ : BufTy).Contents (Elt F) → (⟨S4x256x16, .f32⟩ : BufTy).Contents (Elt F) → (⟨S4x256x16, .f32⟩ : BufTy).Contents (Elt F)),
    unary main_arg3 main_v476 ((extractStridedSlice S4x1x16 ![0, 23, 0] · slices_S4x512x16_S4x1x16_0_23_0) : (⟨S4x512x16, .f32⟩ : BufTy).Contents (Elt F) → (⟨S4x1x16, .f32⟩ : BufTy).Contents (Elt F)),
    reshape main_v476 main_v477 rfl shapeCasts_S4x1x16_S4x16,
    unary main_v477 main_v478 (broadcastInDim S4x1x16 ![0, 2] bcast_S4x16_S4x1x16_0_2 : (⟨S4x16, .f32⟩ : BufTy).Contents (Elt F) → (⟨S4x1x16, .f32⟩ : BufTy).Contents (Elt F)),
    unary main_v478 main_v479 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v475 main_v479 main_v480 (mulf : (⟨S4x256x16, .f32⟩ : BufTy).Contents (Elt F) → (⟨S4x256x16, .f32⟩ : BufTy).Contents (Elt F) → (⟨S4x256x16, .f32⟩ : BufTy).Contents (Elt F)),
    nullary main_cst_46 (constant S_ .f32 0x00000000#32),
    binary main_v480 main_cst_46 main_v481 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_47 (constantI S_ 32 23#32),
    unary main_c_47 main_v482 (broadcastInDim S1 ![] bcast_S_S1 : (⟨S_, .i32⟩ : BufTy).Contents (Elt F) → (⟨S1, .i32⟩ : BufTy).Contents (Elt F)),
    ternary main_v463 main_v482 main_v481 main_v483 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps23_ok : (stepOps23 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step23_val (V : Valuation τ sig (Elt Ideal)) :
    after (stepOps23 (F := Ideal)) V (no_index (Proc.devRef .tc main_v475)) = stepH 23 (by decide) (V (Proc.devRef .tc main_arg0)) (V (Proc.devRef .tc main_v3)) (V (Proc.devRef .tc main_arg2)) (V (Proc.devRef .tc main_v455))
    ∧ after (stepOps23 (F := Ideal)) V (no_index (Proc.devRef .tc main_v483)) = stepY 23 (by decide) (V (Proc.devRef .tc main_arg3)) (stepH 23 (by decide) (V (Proc.devRef .tc main_arg0)) (V (Proc.devRef .tc main_v3)) (V (Proc.devRef .tc main_arg2)) (V (Proc.devRef .tc main_v455))) (V (Proc.devRef .tc main_v463)) := by
  simp only [stepOps23]
  after_results_simp
  first | exact ⟨rfl, rfl⟩ | fail "value"
/-- Step 24 of the loop: operations 535 … 556 of the program. -/
abbrev stepOps24 : List (HloOp τ sig (Elt F)) :=
  [ unary main_v3 main_v484 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v475 main_v484 main_v485 (mulf : (⟨S4x256x16, .f32⟩ : BufTy).Contents (Elt F) → (⟨S4x256x16, .f32⟩ : BufTy).Contents (Elt F) → (⟨S4x256x16, .f32⟩ : BufTy).Contents (Elt F)),
    unary main_arg0 main_v486 ((extractStridedSlice S4x1x256 ![0, 24, 0] · slices_S4x512x256_S4x1x256_0_24_0) : (⟨S4x512x256, .f32⟩ : BufTy).Contents (Elt F) → (⟨S4x1x256, .f32⟩ : BufTy).Contents (Elt F)),
    reshape main_v486 main_v487 rfl shapeCasts_S4x1x256_S4x256,
    unary main_v487 main_v488 (broadcastInDim S4x256x1 ![0, 1] bcast_S4x256_S4x256x1_0_1 : (⟨S4x256, .f32⟩ : BufTy).Contents (Elt F) → (⟨S4x256x1, .f32⟩ : BufTy).Contents (Elt F)),
    unary main_arg2 main_v489 ((extractStridedSlice S4x1x16 ![0, 24, 0] · slices_S4x512x16_S4x1x16_0_24_0) : (⟨S4x512x16, .f32⟩ : BufTy).Contents (Elt F) → (⟨S4x1x16, .f32⟩ : BufTy).Contents (Elt F)),
    reshape main_v489 main_v490 rfl shapeCasts_S4x1x16_S4x16,
    unary main_v490 main_v491 (broadcastInDim S4x1x16 ![0, 2] bcast_S4x16_S4x1x16_0_2 : (⟨S4x16, .f32⟩ : BufTy).Contents (Elt F) → (⟨S4x1x16, .f32⟩ : BufTy).Contents (Elt F)),
    unary main_v488 main_v492 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v491 main_v493 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v492 main_v493 main_v494 (mulf : (⟨S4x256x16, .f32⟩ : BufTy).Contents (Elt F) → (⟨S4x256x16, .f32⟩ : BufTy).Contents (Elt F) → (⟨S4x256x16, .f32⟩ : BufTy).Contents (Elt F)),
    binary main_v485 main_v494 main_v495 (addf : (⟨S4x256x16, .f32⟩ : BufTy).Contents (Elt F) → (⟨S4x256x16, .f32⟩ : BufTy).Contents (Elt F) → (⟨S4x256x16, .f32⟩ : BufTy).Contents (Elt F)),
    unary main_arg3 main_v496 ((extractStridedSlice S4x1x16 ![0, 24, 0] · slices_S4x512x16_S4x1x16_0_24_0) : (⟨S4x512x16, .f32⟩ : BufTy).Contents (Elt F) → (⟨S4x1x16, .f32⟩ : BufTy).Contents (Elt F)),
    reshape main_v496 main_v497 rfl shapeCasts_S4x1x16_S4x16,
    unary main_v497 main_v498 (broadcastInDim S4x1x16 ![0, 2] bcast_S4x16_S4x1x16_0_2 : (⟨S4x16, .f32⟩ : BufTy).Contents (Elt F) → (⟨S4x1x16, .f32⟩ : BufTy).Contents (Elt F)),
    unary main_v498 main_v499 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v495 main_v499 main_v500 (mulf : (⟨S4x256x16, .f32⟩ : BufTy).Contents (Elt F) → (⟨S4x256x16, .f32⟩ : BufTy).Contents (Elt F) → (⟨S4x256x16, .f32⟩ : BufTy).Contents (Elt F)),
    nullary main_cst_48 (constant S_ .f32 0x00000000#32),
    binary main_v500 main_cst_48 main_v501 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_49 (constantI S_ 32 24#32),
    unary main_c_49 main_v502 (broadcastInDim S1 ![] bcast_S_S1 : (⟨S_, .i32⟩ : BufTy).Contents (Elt F) → (⟨S1, .i32⟩ : BufTy).Contents (Elt F)),
    ternary main_v483 main_v502 main_v501 main_v503 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps24_ok : (stepOps24 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step24_val (V : Valuation τ sig (Elt Ideal)) :
    after (stepOps24 (F := Ideal)) V (no_index (Proc.devRef .tc main_v495)) = stepH 24 (by decide) (V (Proc.devRef .tc main_arg0)) (V (Proc.devRef .tc main_v3)) (V (Proc.devRef .tc main_arg2)) (V (Proc.devRef .tc main_v475))
    ∧ after (stepOps24 (F := Ideal)) V (no_index (Proc.devRef .tc main_v503)) = stepY 24 (by decide) (V (Proc.devRef .tc main_arg3)) (stepH 24 (by decide) (V (Proc.devRef .tc main_arg0)) (V (Proc.devRef .tc main_v3)) (V (Proc.devRef .tc main_arg2)) (V (Proc.devRef .tc main_v475))) (V (Proc.devRef .tc main_v483)) := by
  simp only [stepOps24]
  after_results_simp
  first | exact ⟨rfl, rfl⟩ | fail "value"
/-- Step 25 of the loop: operations 557 … 578 of the program. -/
abbrev stepOps25 : List (HloOp τ sig (Elt F)) :=
  [ unary main_v3 main_v504 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v495 main_v504 main_v505 (mulf : (⟨S4x256x16, .f32⟩ : BufTy).Contents (Elt F) → (⟨S4x256x16, .f32⟩ : BufTy).Contents (Elt F) → (⟨S4x256x16, .f32⟩ : BufTy).Contents (Elt F)),
    unary main_arg0 main_v506 ((extractStridedSlice S4x1x256 ![0, 25, 0] · slices_S4x512x256_S4x1x256_0_25_0) : (⟨S4x512x256, .f32⟩ : BufTy).Contents (Elt F) → (⟨S4x1x256, .f32⟩ : BufTy).Contents (Elt F)),
    reshape main_v506 main_v507 rfl shapeCasts_S4x1x256_S4x256,
    unary main_v507 main_v508 (broadcastInDim S4x256x1 ![0, 1] bcast_S4x256_S4x256x1_0_1 : (⟨S4x256, .f32⟩ : BufTy).Contents (Elt F) → (⟨S4x256x1, .f32⟩ : BufTy).Contents (Elt F)),
    unary main_arg2 main_v509 ((extractStridedSlice S4x1x16 ![0, 25, 0] · slices_S4x512x16_S4x1x16_0_25_0) : (⟨S4x512x16, .f32⟩ : BufTy).Contents (Elt F) → (⟨S4x1x16, .f32⟩ : BufTy).Contents (Elt F)),
    reshape main_v509 main_v510 rfl shapeCasts_S4x1x16_S4x16,
    unary main_v510 main_v511 (broadcastInDim S4x1x16 ![0, 2] bcast_S4x16_S4x1x16_0_2 : (⟨S4x16, .f32⟩ : BufTy).Contents (Elt F) → (⟨S4x1x16, .f32⟩ : BufTy).Contents (Elt F)),
    unary main_v508 main_v512 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v511 main_v513 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v512 main_v513 main_v514 (mulf : (⟨S4x256x16, .f32⟩ : BufTy).Contents (Elt F) → (⟨S4x256x16, .f32⟩ : BufTy).Contents (Elt F) → (⟨S4x256x16, .f32⟩ : BufTy).Contents (Elt F)),
    binary main_v505 main_v514 main_v515 (addf : (⟨S4x256x16, .f32⟩ : BufTy).Contents (Elt F) → (⟨S4x256x16, .f32⟩ : BufTy).Contents (Elt F) → (⟨S4x256x16, .f32⟩ : BufTy).Contents (Elt F)),
    unary main_arg3 main_v516 ((extractStridedSlice S4x1x16 ![0, 25, 0] · slices_S4x512x16_S4x1x16_0_25_0) : (⟨S4x512x16, .f32⟩ : BufTy).Contents (Elt F) → (⟨S4x1x16, .f32⟩ : BufTy).Contents (Elt F)),
    reshape main_v516 main_v517 rfl shapeCasts_S4x1x16_S4x16,
    unary main_v517 main_v518 (broadcastInDim S4x1x16 ![0, 2] bcast_S4x16_S4x1x16_0_2 : (⟨S4x16, .f32⟩ : BufTy).Contents (Elt F) → (⟨S4x1x16, .f32⟩ : BufTy).Contents (Elt F)),
    unary main_v518 main_v519 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v515 main_v519 main_v520 (mulf : (⟨S4x256x16, .f32⟩ : BufTy).Contents (Elt F) → (⟨S4x256x16, .f32⟩ : BufTy).Contents (Elt F) → (⟨S4x256x16, .f32⟩ : BufTy).Contents (Elt F)),
    nullary main_cst_50 (constant S_ .f32 0x00000000#32),
    binary main_v520 main_cst_50 main_v521 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_51 (constantI S_ 32 25#32),
    unary main_c_51 main_v522 (broadcastInDim S1 ![] bcast_S_S1 : (⟨S_, .i32⟩ : BufTy).Contents (Elt F) → (⟨S1, .i32⟩ : BufTy).Contents (Elt F)),
    ternary main_v503 main_v522 main_v521 main_v523 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps25_ok : (stepOps25 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step25_val (V : Valuation τ sig (Elt Ideal)) :
    after (stepOps25 (F := Ideal)) V (no_index (Proc.devRef .tc main_v515)) = stepH 25 (by decide) (V (Proc.devRef .tc main_arg0)) (V (Proc.devRef .tc main_v3)) (V (Proc.devRef .tc main_arg2)) (V (Proc.devRef .tc main_v495))
    ∧ after (stepOps25 (F := Ideal)) V (no_index (Proc.devRef .tc main_v523)) = stepY 25 (by decide) (V (Proc.devRef .tc main_arg3)) (stepH 25 (by decide) (V (Proc.devRef .tc main_arg0)) (V (Proc.devRef .tc main_v3)) (V (Proc.devRef .tc main_arg2)) (V (Proc.devRef .tc main_v495))) (V (Proc.devRef .tc main_v503)) := by
  simp only [stepOps25]
  after_results_simp
  first | exact ⟨rfl, rfl⟩ | fail "value"
/-- Step 26 of the loop: operations 579 … 600 of the program. -/
abbrev stepOps26 : List (HloOp τ sig (Elt F)) :=
  [ unary main_v3 main_v524 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v515 main_v524 main_v525 (mulf : (⟨S4x256x16, .f32⟩ : BufTy).Contents (Elt F) → (⟨S4x256x16, .f32⟩ : BufTy).Contents (Elt F) → (⟨S4x256x16, .f32⟩ : BufTy).Contents (Elt F)),
    unary main_arg0 main_v526 ((extractStridedSlice S4x1x256 ![0, 26, 0] · slices_S4x512x256_S4x1x256_0_26_0) : (⟨S4x512x256, .f32⟩ : BufTy).Contents (Elt F) → (⟨S4x1x256, .f32⟩ : BufTy).Contents (Elt F)),
    reshape main_v526 main_v527 rfl shapeCasts_S4x1x256_S4x256,
    unary main_v527 main_v528 (broadcastInDim S4x256x1 ![0, 1] bcast_S4x256_S4x256x1_0_1 : (⟨S4x256, .f32⟩ : BufTy).Contents (Elt F) → (⟨S4x256x1, .f32⟩ : BufTy).Contents (Elt F)),
    unary main_arg2 main_v529 ((extractStridedSlice S4x1x16 ![0, 26, 0] · slices_S4x512x16_S4x1x16_0_26_0) : (⟨S4x512x16, .f32⟩ : BufTy).Contents (Elt F) → (⟨S4x1x16, .f32⟩ : BufTy).Contents (Elt F)),
    reshape main_v529 main_v530 rfl shapeCasts_S4x1x16_S4x16,
    unary main_v530 main_v531 (broadcastInDim S4x1x16 ![0, 2] bcast_S4x16_S4x1x16_0_2 : (⟨S4x16, .f32⟩ : BufTy).Contents (Elt F) → (⟨S4x1x16, .f32⟩ : BufTy).Contents (Elt F)),
    unary main_v528 main_v532 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v531 main_v533 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v532 main_v533 main_v534 (mulf : (⟨S4x256x16, .f32⟩ : BufTy).Contents (Elt F) → (⟨S4x256x16, .f32⟩ : BufTy).Contents (Elt F) → (⟨S4x256x16, .f32⟩ : BufTy).Contents (Elt F)),
    binary main_v525 main_v534 main_v535 (addf : (⟨S4x256x16, .f32⟩ : BufTy).Contents (Elt F) → (⟨S4x256x16, .f32⟩ : BufTy).Contents (Elt F) → (⟨S4x256x16, .f32⟩ : BufTy).Contents (Elt F)),
    unary main_arg3 main_v536 ((extractStridedSlice S4x1x16 ![0, 26, 0] · slices_S4x512x16_S4x1x16_0_26_0) : (⟨S4x512x16, .f32⟩ : BufTy).Contents (Elt F) → (⟨S4x1x16, .f32⟩ : BufTy).Contents (Elt F)),
    reshape main_v536 main_v537 rfl shapeCasts_S4x1x16_S4x16,
    unary main_v537 main_v538 (broadcastInDim S4x1x16 ![0, 2] bcast_S4x16_S4x1x16_0_2 : (⟨S4x16, .f32⟩ : BufTy).Contents (Elt F) → (⟨S4x1x16, .f32⟩ : BufTy).Contents (Elt F)),
    unary main_v538 main_v539 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v535 main_v539 main_v540 (mulf : (⟨S4x256x16, .f32⟩ : BufTy).Contents (Elt F) → (⟨S4x256x16, .f32⟩ : BufTy).Contents (Elt F) → (⟨S4x256x16, .f32⟩ : BufTy).Contents (Elt F)),
    nullary main_cst_52 (constant S_ .f32 0x00000000#32),
    binary main_v540 main_cst_52 main_v541 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_53 (constantI S_ 32 26#32),
    unary main_c_53 main_v542 (broadcastInDim S1 ![] bcast_S_S1 : (⟨S_, .i32⟩ : BufTy).Contents (Elt F) → (⟨S1, .i32⟩ : BufTy).Contents (Elt F)),
    ternary main_v523 main_v542 main_v541 main_v543 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps26_ok : (stepOps26 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step26_val (V : Valuation τ sig (Elt Ideal)) :
    after (stepOps26 (F := Ideal)) V (no_index (Proc.devRef .tc main_v535)) = stepH 26 (by decide) (V (Proc.devRef .tc main_arg0)) (V (Proc.devRef .tc main_v3)) (V (Proc.devRef .tc main_arg2)) (V (Proc.devRef .tc main_v515))
    ∧ after (stepOps26 (F := Ideal)) V (no_index (Proc.devRef .tc main_v543)) = stepY 26 (by decide) (V (Proc.devRef .tc main_arg3)) (stepH 26 (by decide) (V (Proc.devRef .tc main_arg0)) (V (Proc.devRef .tc main_v3)) (V (Proc.devRef .tc main_arg2)) (V (Proc.devRef .tc main_v515))) (V (Proc.devRef .tc main_v523)) := by
  simp only [stepOps26]
  after_results_simp
  first | exact ⟨rfl, rfl⟩ | fail "value"
/-- Step 27 of the loop: operations 601 … 622 of the program. -/
abbrev stepOps27 : List (HloOp τ sig (Elt F)) :=
  [ unary main_v3 main_v544 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v535 main_v544 main_v545 (mulf : (⟨S4x256x16, .f32⟩ : BufTy).Contents (Elt F) → (⟨S4x256x16, .f32⟩ : BufTy).Contents (Elt F) → (⟨S4x256x16, .f32⟩ : BufTy).Contents (Elt F)),
    unary main_arg0 main_v546 ((extractStridedSlice S4x1x256 ![0, 27, 0] · slices_S4x512x256_S4x1x256_0_27_0) : (⟨S4x512x256, .f32⟩ : BufTy).Contents (Elt F) → (⟨S4x1x256, .f32⟩ : BufTy).Contents (Elt F)),
    reshape main_v546 main_v547 rfl shapeCasts_S4x1x256_S4x256,
    unary main_v547 main_v548 (broadcastInDim S4x256x1 ![0, 1] bcast_S4x256_S4x256x1_0_1 : (⟨S4x256, .f32⟩ : BufTy).Contents (Elt F) → (⟨S4x256x1, .f32⟩ : BufTy).Contents (Elt F)),
    unary main_arg2 main_v549 ((extractStridedSlice S4x1x16 ![0, 27, 0] · slices_S4x512x16_S4x1x16_0_27_0) : (⟨S4x512x16, .f32⟩ : BufTy).Contents (Elt F) → (⟨S4x1x16, .f32⟩ : BufTy).Contents (Elt F)),
    reshape main_v549 main_v550 rfl shapeCasts_S4x1x16_S4x16,
    unary main_v550 main_v551 (broadcastInDim S4x1x16 ![0, 2] bcast_S4x16_S4x1x16_0_2 : (⟨S4x16, .f32⟩ : BufTy).Contents (Elt F) → (⟨S4x1x16, .f32⟩ : BufTy).Contents (Elt F)),
    unary main_v548 main_v552 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v551 main_v553 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v552 main_v553 main_v554 (mulf : (⟨S4x256x16, .f32⟩ : BufTy).Contents (Elt F) → (⟨S4x256x16, .f32⟩ : BufTy).Contents (Elt F) → (⟨S4x256x16, .f32⟩ : BufTy).Contents (Elt F)),
    binary main_v545 main_v554 main_v555 (addf : (⟨S4x256x16, .f32⟩ : BufTy).Contents (Elt F) → (⟨S4x256x16, .f32⟩ : BufTy).Contents (Elt F) → (⟨S4x256x16, .f32⟩ : BufTy).Contents (Elt F)),
    unary main_arg3 main_v556 ((extractStridedSlice S4x1x16 ![0, 27, 0] · slices_S4x512x16_S4x1x16_0_27_0) : (⟨S4x512x16, .f32⟩ : BufTy).Contents (Elt F) → (⟨S4x1x16, .f32⟩ : BufTy).Contents (Elt F)),
    reshape main_v556 main_v557 rfl shapeCasts_S4x1x16_S4x16,
    unary main_v557 main_v558 (broadcastInDim S4x1x16 ![0, 2] bcast_S4x16_S4x1x16_0_2 : (⟨S4x16, .f32⟩ : BufTy).Contents (Elt F) → (⟨S4x1x16, .f32⟩ : BufTy).Contents (Elt F)),
    unary main_v558 main_v559 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v555 main_v559 main_v560 (mulf : (⟨S4x256x16, .f32⟩ : BufTy).Contents (Elt F) → (⟨S4x256x16, .f32⟩ : BufTy).Contents (Elt F) → (⟨S4x256x16, .f32⟩ : BufTy).Contents (Elt F)),
    nullary main_cst_54 (constant S_ .f32 0x00000000#32),
    binary main_v560 main_cst_54 main_v561 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_55 (constantI S_ 32 27#32),
    unary main_c_55 main_v562 (broadcastInDim S1 ![] bcast_S_S1 : (⟨S_, .i32⟩ : BufTy).Contents (Elt F) → (⟨S1, .i32⟩ : BufTy).Contents (Elt F)),
    ternary main_v543 main_v562 main_v561 main_v563 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps27_ok : (stepOps27 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step27_val (V : Valuation τ sig (Elt Ideal)) :
    after (stepOps27 (F := Ideal)) V (no_index (Proc.devRef .tc main_v555)) = stepH 27 (by decide) (V (Proc.devRef .tc main_arg0)) (V (Proc.devRef .tc main_v3)) (V (Proc.devRef .tc main_arg2)) (V (Proc.devRef .tc main_v535))
    ∧ after (stepOps27 (F := Ideal)) V (no_index (Proc.devRef .tc main_v563)) = stepY 27 (by decide) (V (Proc.devRef .tc main_arg3)) (stepH 27 (by decide) (V (Proc.devRef .tc main_arg0)) (V (Proc.devRef .tc main_v3)) (V (Proc.devRef .tc main_arg2)) (V (Proc.devRef .tc main_v535))) (V (Proc.devRef .tc main_v543)) := by
  simp only [stepOps27]
  after_results_simp
  first | exact ⟨rfl, rfl⟩ | fail "value"
/-- Step 28 of the loop: operations 623 … 644 of the program. -/
abbrev stepOps28 : List (HloOp τ sig (Elt F)) :=
  [ unary main_v3 main_v564 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v555 main_v564 main_v565 (mulf : (⟨S4x256x16, .f32⟩ : BufTy).Contents (Elt F) → (⟨S4x256x16, .f32⟩ : BufTy).Contents (Elt F) → (⟨S4x256x16, .f32⟩ : BufTy).Contents (Elt F)),
    unary main_arg0 main_v566 ((extractStridedSlice S4x1x256 ![0, 28, 0] · slices_S4x512x256_S4x1x256_0_28_0) : (⟨S4x512x256, .f32⟩ : BufTy).Contents (Elt F) → (⟨S4x1x256, .f32⟩ : BufTy).Contents (Elt F)),
    reshape main_v566 main_v567 rfl shapeCasts_S4x1x256_S4x256,
    unary main_v567 main_v568 (broadcastInDim S4x256x1 ![0, 1] bcast_S4x256_S4x256x1_0_1 : (⟨S4x256, .f32⟩ : BufTy).Contents (Elt F) → (⟨S4x256x1, .f32⟩ : BufTy).Contents (Elt F)),
    unary main_arg2 main_v569 ((extractStridedSlice S4x1x16 ![0, 28, 0] · slices_S4x512x16_S4x1x16_0_28_0) : (⟨S4x512x16, .f32⟩ : BufTy).Contents (Elt F) → (⟨S4x1x16, .f32⟩ : BufTy).Contents (Elt F)),
    reshape main_v569 main_v570 rfl shapeCasts_S4x1x16_S4x16,
    unary main_v570 main_v571 (broadcastInDim S4x1x16 ![0, 2] bcast_S4x16_S4x1x16_0_2 : (⟨S4x16, .f32⟩ : BufTy).Contents (Elt F) → (⟨S4x1x16, .f32⟩ : BufTy).Contents (Elt F)),
    unary main_v568 main_v572 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v571 main_v573 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v572 main_v573 main_v574 (mulf : (⟨S4x256x16, .f32⟩ : BufTy).Contents (Elt F) → (⟨S4x256x16, .f32⟩ : BufTy).Contents (Elt F) → (⟨S4x256x16, .f32⟩ : BufTy).Contents (Elt F)),
    binary main_v565 main_v574 main_v575 (addf : (⟨S4x256x16, .f32⟩ : BufTy).Contents (Elt F) → (⟨S4x256x16, .f32⟩ : BufTy).Contents (Elt F) → (⟨S4x256x16, .f32⟩ : BufTy).Contents (Elt F)),
    unary main_arg3 main_v576 ((extractStridedSlice S4x1x16 ![0, 28, 0] · slices_S4x512x16_S4x1x16_0_28_0) : (⟨S4x512x16, .f32⟩ : BufTy).Contents (Elt F) → (⟨S4x1x16, .f32⟩ : BufTy).Contents (Elt F)),
    reshape main_v576 main_v577 rfl shapeCasts_S4x1x16_S4x16,
    unary main_v577 main_v578 (broadcastInDim S4x1x16 ![0, 2] bcast_S4x16_S4x1x16_0_2 : (⟨S4x16, .f32⟩ : BufTy).Contents (Elt F) → (⟨S4x1x16, .f32⟩ : BufTy).Contents (Elt F)),
    unary main_v578 main_v579 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v575 main_v579 main_v580 (mulf : (⟨S4x256x16, .f32⟩ : BufTy).Contents (Elt F) → (⟨S4x256x16, .f32⟩ : BufTy).Contents (Elt F) → (⟨S4x256x16, .f32⟩ : BufTy).Contents (Elt F)),
    nullary main_cst_56 (constant S_ .f32 0x00000000#32),
    binary main_v580 main_cst_56 main_v581 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_57 (constantI S_ 32 28#32),
    unary main_c_57 main_v582 (broadcastInDim S1 ![] bcast_S_S1 : (⟨S_, .i32⟩ : BufTy).Contents (Elt F) → (⟨S1, .i32⟩ : BufTy).Contents (Elt F)),
    ternary main_v563 main_v582 main_v581 main_v583 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps28_ok : (stepOps28 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step28_val (V : Valuation τ sig (Elt Ideal)) :
    after (stepOps28 (F := Ideal)) V (no_index (Proc.devRef .tc main_v575)) = stepH 28 (by decide) (V (Proc.devRef .tc main_arg0)) (V (Proc.devRef .tc main_v3)) (V (Proc.devRef .tc main_arg2)) (V (Proc.devRef .tc main_v555))
    ∧ after (stepOps28 (F := Ideal)) V (no_index (Proc.devRef .tc main_v583)) = stepY 28 (by decide) (V (Proc.devRef .tc main_arg3)) (stepH 28 (by decide) (V (Proc.devRef .tc main_arg0)) (V (Proc.devRef .tc main_v3)) (V (Proc.devRef .tc main_arg2)) (V (Proc.devRef .tc main_v555))) (V (Proc.devRef .tc main_v563)) := by
  simp only [stepOps28]
  after_results_simp
  first | exact ⟨rfl, rfl⟩ | fail "value"
/-- Step 29 of the loop: operations 645 … 666 of the program. -/
abbrev stepOps29 : List (HloOp τ sig (Elt F)) :=
  [ unary main_v3 main_v584 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v575 main_v584 main_v585 (mulf : (⟨S4x256x16, .f32⟩ : BufTy).Contents (Elt F) → (⟨S4x256x16, .f32⟩ : BufTy).Contents (Elt F) → (⟨S4x256x16, .f32⟩ : BufTy).Contents (Elt F)),
    unary main_arg0 main_v586 ((extractStridedSlice S4x1x256 ![0, 29, 0] · slices_S4x512x256_S4x1x256_0_29_0) : (⟨S4x512x256, .f32⟩ : BufTy).Contents (Elt F) → (⟨S4x1x256, .f32⟩ : BufTy).Contents (Elt F)),
    reshape main_v586 main_v587 rfl shapeCasts_S4x1x256_S4x256,
    unary main_v587 main_v588 (broadcastInDim S4x256x1 ![0, 1] bcast_S4x256_S4x256x1_0_1 : (⟨S4x256, .f32⟩ : BufTy).Contents (Elt F) → (⟨S4x256x1, .f32⟩ : BufTy).Contents (Elt F)),
    unary main_arg2 main_v589 ((extractStridedSlice S4x1x16 ![0, 29, 0] · slices_S4x512x16_S4x1x16_0_29_0) : (⟨S4x512x16, .f32⟩ : BufTy).Contents (Elt F) → (⟨S4x1x16, .f32⟩ : BufTy).Contents (Elt F)),
    reshape main_v589 main_v590 rfl shapeCasts_S4x1x16_S4x16,
    unary main_v590 main_v591 (broadcastInDim S4x1x16 ![0, 2] bcast_S4x16_S4x1x16_0_2 : (⟨S4x16, .f32⟩ : BufTy).Contents (Elt F) → (⟨S4x1x16, .f32⟩ : BufTy).Contents (Elt F)),
    unary main_v588 main_v592 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v591 main_v593 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v592 main_v593 main_v594 (mulf : (⟨S4x256x16, .f32⟩ : BufTy).Contents (Elt F) → (⟨S4x256x16, .f32⟩ : BufTy).Contents (Elt F) → (⟨S4x256x16, .f32⟩ : BufTy).Contents (Elt F)),
    binary main_v585 main_v594 main_v595 (addf : (⟨S4x256x16, .f32⟩ : BufTy).Contents (Elt F) → (⟨S4x256x16, .f32⟩ : BufTy).Contents (Elt F) → (⟨S4x256x16, .f32⟩ : BufTy).Contents (Elt F)),
    unary main_arg3 main_v596 ((extractStridedSlice S4x1x16 ![0, 29, 0] · slices_S4x512x16_S4x1x16_0_29_0) : (⟨S4x512x16, .f32⟩ : BufTy).Contents (Elt F) → (⟨S4x1x16, .f32⟩ : BufTy).Contents (Elt F)),
    reshape main_v596 main_v597 rfl shapeCasts_S4x1x16_S4x16,
    unary main_v597 main_v598 (broadcastInDim S4x1x16 ![0, 2] bcast_S4x16_S4x1x16_0_2 : (⟨S4x16, .f32⟩ : BufTy).Contents (Elt F) → (⟨S4x1x16, .f32⟩ : BufTy).Contents (Elt F)),
    unary main_v598 main_v599 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v595 main_v599 main_v600 (mulf : (⟨S4x256x16, .f32⟩ : BufTy).Contents (Elt F) → (⟨S4x256x16, .f32⟩ : BufTy).Contents (Elt F) → (⟨S4x256x16, .f32⟩ : BufTy).Contents (Elt F)),
    nullary main_cst_58 (constant S_ .f32 0x00000000#32),
    binary main_v600 main_cst_58 main_v601 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_59 (constantI S_ 32 29#32),
    unary main_c_59 main_v602 (broadcastInDim S1 ![] bcast_S_S1 : (⟨S_, .i32⟩ : BufTy).Contents (Elt F) → (⟨S1, .i32⟩ : BufTy).Contents (Elt F)),
    ternary main_v583 main_v602 main_v601 main_v603 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps29_ok : (stepOps29 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step29_val (V : Valuation τ sig (Elt Ideal)) :
    after (stepOps29 (F := Ideal)) V (no_index (Proc.devRef .tc main_v595)) = stepH 29 (by decide) (V (Proc.devRef .tc main_arg0)) (V (Proc.devRef .tc main_v3)) (V (Proc.devRef .tc main_arg2)) (V (Proc.devRef .tc main_v575))
    ∧ after (stepOps29 (F := Ideal)) V (no_index (Proc.devRef .tc main_v603)) = stepY 29 (by decide) (V (Proc.devRef .tc main_arg3)) (stepH 29 (by decide) (V (Proc.devRef .tc main_arg0)) (V (Proc.devRef .tc main_v3)) (V (Proc.devRef .tc main_arg2)) (V (Proc.devRef .tc main_v575))) (V (Proc.devRef .tc main_v583)) := by
  simp only [stepOps29]
  after_results_simp
  first | exact ⟨rfl, rfl⟩ | fail "value"
/-- Step 30 of the loop: operations 667 … 688 of the program. -/
abbrev stepOps30 : List (HloOp τ sig (Elt F)) :=
  [ unary main_v3 main_v604 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v595 main_v604 main_v605 (mulf : (⟨S4x256x16, .f32⟩ : BufTy).Contents (Elt F) → (⟨S4x256x16, .f32⟩ : BufTy).Contents (Elt F) → (⟨S4x256x16, .f32⟩ : BufTy).Contents (Elt F)),
    unary main_arg0 main_v606 ((extractStridedSlice S4x1x256 ![0, 30, 0] · slices_S4x512x256_S4x1x256_0_30_0) : (⟨S4x512x256, .f32⟩ : BufTy).Contents (Elt F) → (⟨S4x1x256, .f32⟩ : BufTy).Contents (Elt F)),
    reshape main_v606 main_v607 rfl shapeCasts_S4x1x256_S4x256,
    unary main_v607 main_v608 (broadcastInDim S4x256x1 ![0, 1] bcast_S4x256_S4x256x1_0_1 : (⟨S4x256, .f32⟩ : BufTy).Contents (Elt F) → (⟨S4x256x1, .f32⟩ : BufTy).Contents (Elt F)),
    unary main_arg2 main_v609 ((extractStridedSlice S4x1x16 ![0, 30, 0] · slices_S4x512x16_S4x1x16_0_30_0) : (⟨S4x512x16, .f32⟩ : BufTy).Contents (Elt F) → (⟨S4x1x16, .f32⟩ : BufTy).Contents (Elt F)),
    reshape main_v609 main_v610 rfl shapeCasts_S4x1x16_S4x16,
    unary main_v610 main_v611 (broadcastInDim S4x1x16 ![0, 2] bcast_S4x16_S4x1x16_0_2 : (⟨S4x16, .f32⟩ : BufTy).Contents (Elt F) → (⟨S4x1x16, .f32⟩ : BufTy).Contents (Elt F)),
    unary main_v608 main_v612 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v611 main_v613 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v612 main_v613 main_v614 (mulf : (⟨S4x256x16, .f32⟩ : BufTy).Contents (Elt F) → (⟨S4x256x16, .f32⟩ : BufTy).Contents (Elt F) → (⟨S4x256x16, .f32⟩ : BufTy).Contents (Elt F)),
    binary main_v605 main_v614 main_v615 (addf : (⟨S4x256x16, .f32⟩ : BufTy).Contents (Elt F) → (⟨S4x256x16, .f32⟩ : BufTy).Contents (Elt F) → (⟨S4x256x16, .f32⟩ : BufTy).Contents (Elt F)),
    unary main_arg3 main_v616 ((extractStridedSlice S4x1x16 ![0, 30, 0] · slices_S4x512x16_S4x1x16_0_30_0) : (⟨S4x512x16, .f32⟩ : BufTy).Contents (Elt F) → (⟨S4x1x16, .f32⟩ : BufTy).Contents (Elt F)),
    reshape main_v616 main_v617 rfl shapeCasts_S4x1x16_S4x16,
    unary main_v617 main_v618 (broadcastInDim S4x1x16 ![0, 2] bcast_S4x16_S4x1x16_0_2 : (⟨S4x16, .f32⟩ : BufTy).Contents (Elt F) → (⟨S4x1x16, .f32⟩ : BufTy).Contents (Elt F)),
    unary main_v618 main_v619 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v615 main_v619 main_v620 (mulf : (⟨S4x256x16, .f32⟩ : BufTy).Contents (Elt F) → (⟨S4x256x16, .f32⟩ : BufTy).Contents (Elt F) → (⟨S4x256x16, .f32⟩ : BufTy).Contents (Elt F)),
    nullary main_cst_60 (constant S_ .f32 0x00000000#32),
    binary main_v620 main_cst_60 main_v621 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_61 (constantI S_ 32 30#32),
    unary main_c_61 main_v622 (broadcastInDim S1 ![] bcast_S_S1 : (⟨S_, .i32⟩ : BufTy).Contents (Elt F) → (⟨S1, .i32⟩ : BufTy).Contents (Elt F)),
    ternary main_v603 main_v622 main_v621 main_v623 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps30_ok : (stepOps30 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step30_val (V : Valuation τ sig (Elt Ideal)) :
    after (stepOps30 (F := Ideal)) V (no_index (Proc.devRef .tc main_v615)) = stepH 30 (by decide) (V (Proc.devRef .tc main_arg0)) (V (Proc.devRef .tc main_v3)) (V (Proc.devRef .tc main_arg2)) (V (Proc.devRef .tc main_v595))
    ∧ after (stepOps30 (F := Ideal)) V (no_index (Proc.devRef .tc main_v623)) = stepY 30 (by decide) (V (Proc.devRef .tc main_arg3)) (stepH 30 (by decide) (V (Proc.devRef .tc main_arg0)) (V (Proc.devRef .tc main_v3)) (V (Proc.devRef .tc main_arg2)) (V (Proc.devRef .tc main_v595))) (V (Proc.devRef .tc main_v603)) := by
  simp only [stepOps30]
  after_results_simp
  first | exact ⟨rfl, rfl⟩ | fail "value"
/-- Step 31 of the loop: operations 689 … 710 of the program. -/
abbrev stepOps31 : List (HloOp τ sig (Elt F)) :=
  [ unary main_v3 main_v624 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v615 main_v624 main_v625 (mulf : (⟨S4x256x16, .f32⟩ : BufTy).Contents (Elt F) → (⟨S4x256x16, .f32⟩ : BufTy).Contents (Elt F) → (⟨S4x256x16, .f32⟩ : BufTy).Contents (Elt F)),
    unary main_arg0 main_v626 ((extractStridedSlice S4x1x256 ![0, 31, 0] · slices_S4x512x256_S4x1x256_0_31_0) : (⟨S4x512x256, .f32⟩ : BufTy).Contents (Elt F) → (⟨S4x1x256, .f32⟩ : BufTy).Contents (Elt F)),
    reshape main_v626 main_v627 rfl shapeCasts_S4x1x256_S4x256,
    unary main_v627 main_v628 (broadcastInDim S4x256x1 ![0, 1] bcast_S4x256_S4x256x1_0_1 : (⟨S4x256, .f32⟩ : BufTy).Contents (Elt F) → (⟨S4x256x1, .f32⟩ : BufTy).Contents (Elt F)),
    unary main_arg2 main_v629 ((extractStridedSlice S4x1x16 ![0, 31, 0] · slices_S4x512x16_S4x1x16_0_31_0) : (⟨S4x512x16, .f32⟩ : BufTy).Contents (Elt F) → (⟨S4x1x16, .f32⟩ : BufTy).Contents (Elt F)),
    reshape main_v629 main_v630 rfl shapeCasts_S4x1x16_S4x16,
    unary main_v630 main_v631 (broadcastInDim S4x1x16 ![0, 2] bcast_S4x16_S4x1x16_0_2 : (⟨S4x16, .f32⟩ : BufTy).Contents (Elt F) → (⟨S4x1x16, .f32⟩ : BufTy).Contents (Elt F)),
    unary main_v628 main_v632 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v631 main_v633 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v632 main_v633 main_v634 (mulf : (⟨S4x256x16, .f32⟩ : BufTy).Contents (Elt F) → (⟨S4x256x16, .f32⟩ : BufTy).Contents (Elt F) → (⟨S4x256x16, .f32⟩ : BufTy).Contents (Elt F)),
    binary main_v625 main_v634 main_v635 (addf : (⟨S4x256x16, .f32⟩ : BufTy).Contents (Elt F) → (⟨S4x256x16, .f32⟩ : BufTy).Contents (Elt F) → (⟨S4x256x16, .f32⟩ : BufTy).Contents (Elt F)),
    unary main_arg3 main_v636 ((extractStridedSlice S4x1x16 ![0, 31, 0] · slices_S4x512x16_S4x1x16_0_31_0) : (⟨S4x512x16, .f32⟩ : BufTy).Contents (Elt F) → (⟨S4x1x16, .f32⟩ : BufTy).Contents (Elt F)),
    reshape main_v636 main_v637 rfl shapeCasts_S4x1x16_S4x16,
    unary main_v637 main_v638 (broadcastInDim S4x1x16 ![0, 2] bcast_S4x16_S4x1x16_0_2 : (⟨S4x16, .f32⟩ : BufTy).Contents (Elt F) → (⟨S4x1x16, .f32⟩ : BufTy).Contents (Elt F)),
    unary main_v638 main_v639 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v635 main_v639 main_v640 (mulf : (⟨S4x256x16, .f32⟩ : BufTy).Contents (Elt F) → (⟨S4x256x16, .f32⟩ : BufTy).Contents (Elt F) → (⟨S4x256x16, .f32⟩ : BufTy).Contents (Elt F)),
    nullary main_cst_62 (constant S_ .f32 0x00000000#32),
    binary main_v640 main_cst_62 main_v641 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_63 (constantI S_ 32 31#32),
    unary main_c_63 main_v642 (broadcastInDim S1 ![] bcast_S_S1 : (⟨S_, .i32⟩ : BufTy).Contents (Elt F) → (⟨S1, .i32⟩ : BufTy).Contents (Elt F)),
    ternary main_v623 main_v642 main_v641 main_v643 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps31_ok : (stepOps31 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step31_val (V : Valuation τ sig (Elt Ideal)) :
    after (stepOps31 (F := Ideal)) V (no_index (Proc.devRef .tc main_v635)) = stepH 31 (by decide) (V (Proc.devRef .tc main_arg0)) (V (Proc.devRef .tc main_v3)) (V (Proc.devRef .tc main_arg2)) (V (Proc.devRef .tc main_v615))
    ∧ after (stepOps31 (F := Ideal)) V (no_index (Proc.devRef .tc main_v643)) = stepY 31 (by decide) (V (Proc.devRef .tc main_arg3)) (stepH 31 (by decide) (V (Proc.devRef .tc main_arg0)) (V (Proc.devRef .tc main_v3)) (V (Proc.devRef .tc main_arg2)) (V (Proc.devRef .tc main_v615))) (V (Proc.devRef .tc main_v623)) := by
  simp only [stepOps31]
  after_results_simp
  first | exact ⟨rfl, rfl⟩ | fail "value"

end Cert.ReferenceIdeal.RefRun

end
-- ==== Proof.RefTableStep02.lean ====
/-
  Steps 32 … 47 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 32 of the loop: operations 711 … 732 of the program. -/
abbrev stepOps32 : List (HloOp τ sig (Elt F)) :=
  [ unary main_v3 main_v644 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v635 main_v644 main_v645 (mulf : (⟨S4x256x16, .f32⟩ : BufTy).Contents (Elt F) → (⟨S4x256x16, .f32⟩ : BufTy).Contents (Elt F) → (⟨S4x256x16, .f32⟩ : BufTy).Contents (Elt F)),
    unary main_arg0 main_v646 ((extractStridedSlice S4x1x256 ![0, 32, 0] · slices_S4x512x256_S4x1x256_0_32_0) : (⟨S4x512x256, .f32⟩ : BufTy).Contents (Elt F) → (⟨S4x1x256, .f32⟩ : BufTy).Contents (Elt F)),
    reshape main_v646 main_v647 rfl shapeCasts_S4x1x256_S4x256,
    unary main_v647 main_v648 (broadcastInDim S4x256x1 ![0, 1] bcast_S4x256_S4x256x1_0_1 : (⟨S4x256, .f32⟩ : BufTy).Contents (Elt F) → (⟨S4x256x1, .f32⟩ : BufTy).Contents (Elt F)),
    unary main_arg2 main_v649 ((extractStridedSlice S4x1x16 ![0, 32, 0] · slices_S4x512x16_S4x1x16_0_32_0) : (⟨S4x512x16, .f32⟩ : BufTy).Contents (Elt F) → (⟨S4x1x16, .f32⟩ : BufTy).Contents (Elt F)),
    reshape main_v649 main_v650 rfl shapeCasts_S4x1x16_S4x16,
    unary main_v650 main_v651 (broadcastInDim S4x1x16 ![0, 2] bcast_S4x16_S4x1x16_0_2 : (⟨S4x16, .f32⟩ : BufTy).Contents (Elt F) → (⟨S4x1x16, .f32⟩ : BufTy).Contents (Elt F)),
    unary main_v648 main_v652 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v651 main_v653 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v652 main_v653 main_v654 (mulf : (⟨S4x256x16, .f32⟩ : BufTy).Contents (Elt F) → (⟨S4x256x16, .f32⟩ : BufTy).Contents (Elt F) → (⟨S4x256x16, .f32⟩ : BufTy).Contents (Elt F)),
    binary main_v645 main_v654 main_v655 (addf : (⟨S4x256x16, .f32⟩ : BufTy).Contents (Elt F) → (⟨S4x256x16, .f32⟩ : BufTy).Contents (Elt F) → (⟨S4x256x16, .f32⟩ : BufTy).Contents (Elt F)),
    unary main_arg3 main_v656 ((extractStridedSlice S4x1x16 ![0, 32, 0] · slices_S4x512x16_S4x1x16_0_32_0) : (⟨S4x512x16, .f32⟩ : BufTy).Contents (Elt F) → (⟨S4x1x16, .f32⟩ : BufTy).Contents (Elt F)),
    reshape main_v656 main_v657 rfl shapeCasts_S4x1x16_S4x16,
    unary main_v657 main_v658 (broadcastInDim S4x1x16 ![0, 2] bcast_S4x16_S4x1x16_0_2 : (⟨S4x16, .f32⟩ : BufTy).Contents (Elt F) → (⟨S4x1x16, .f32⟩ : BufTy).Contents (Elt F)),
    unary main_v658 main_v659 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v655 main_v659 main_v660 (mulf : (⟨S4x256x16, .f32⟩ : BufTy).Contents (Elt F) → (⟨S4x256x16, .f32⟩ : BufTy).Contents (Elt F) → (⟨S4x256x16, .f32⟩ : BufTy).Contents (Elt F)),
    nullary main_cst_64 (constant S_ .f32 0x00000000#32),
    binary main_v660 main_cst_64 main_v661 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_65 (constantI S_ 32 32#32),
    unary main_c_65 main_v662 (broadcastInDim S1 ![] bcast_S_S1 : (⟨S_, .i32⟩ : BufTy).Contents (Elt F) → (⟨S1, .i32⟩ : BufTy).Contents (Elt F)),
    ternary main_v643 main_v662 main_v661 main_v663 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps32_ok : (stepOps32 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step32_val (V : Valuation τ sig (Elt Ideal)) :
    after (stepOps32 (F := Ideal)) V (no_index (Proc.devRef .tc main_v655)) = stepH 32 (by decide) (V (Proc.devRef .tc main_arg0)) (V (Proc.devRef .tc main_v3)) (V (Proc.devRef .tc main_arg2)) (V (Proc.devRef .tc main_v635))
    ∧ after (stepOps32 (F := Ideal)) V (no_index (Proc.devRef .tc main_v663)) = stepY 32 (by decide) (V (Proc.devRef .tc main_arg3)) (stepH 32 (by decide) (V (Proc.devRef .tc main_arg0)) (V (Proc.devRef .tc main_v3)) (V (Proc.devRef .tc main_arg2)) (V (Proc.devRef .tc main_v635))) (V (Proc.devRef .tc main_v643)) := by
  simp only [stepOps32]
  after_results_simp
  first | exact ⟨rfl, rfl⟩ | fail "value"
/-- Step 33 of the loop: operations 733 … 754 of the program. -/
abbrev stepOps33 : List (HloOp τ sig (Elt F)) :=
  [ unary main_v3 main_v664 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v655 main_v664 main_v665 (mulf : (⟨S4x256x16, .f32⟩ : BufTy).Contents (Elt F) → (⟨S4x256x16, .f32⟩ : BufTy).Contents (Elt F) → (⟨S4x256x16, .f32⟩ : BufTy).Contents (Elt F)),
    unary main_arg0 main_v666 ((extractStridedSlice S4x1x256 ![0, 33, 0] · slices_S4x512x256_S4x1x256_0_33_0) : (⟨S4x512x256, .f32⟩ : BufTy).Contents (Elt F) → (⟨S4x1x256, .f32⟩ : BufTy).Contents (Elt F)),
    reshape main_v666 main_v667 rfl shapeCasts_S4x1x256_S4x256,
    unary main_v667 main_v668 (broadcastInDim S4x256x1 ![0, 1] bcast_S4x256_S4x256x1_0_1 : (⟨S4x256, .f32⟩ : BufTy).Contents (Elt F) → (⟨S4x256x1, .f32⟩ : BufTy).Contents (Elt F)),
    unary main_arg2 main_v669 ((extractStridedSlice S4x1x16 ![0, 33, 0] · slices_S4x512x16_S4x1x16_0_33_0) : (⟨S4x512x16, .f32⟩ : BufTy).Contents (Elt F) → (⟨S4x1x16, .f32⟩ : BufTy).Contents (Elt F)),
    reshape main_v669 main_v670 rfl shapeCasts_S4x1x16_S4x16,
    unary main_v670 main_v671 (broadcastInDim S4x1x16 ![0, 2] bcast_S4x16_S4x1x16_0_2 : (⟨S4x16, .f32⟩ : BufTy).Contents (Elt F) → (⟨S4x1x16, .f32⟩ : BufTy).Contents (Elt F)),
    unary main_v668 main_v672 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v671 main_v673 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v672 main_v673 main_v674 (mulf : (⟨S4x256x16, .f32⟩ : BufTy).Contents (Elt F) → (⟨S4x256x16, .f32⟩ : BufTy).Contents (Elt F) → (⟨S4x256x16, .f32⟩ : BufTy).Contents (Elt F)),
    binary main_v665 main_v674 main_v675 (addf : (⟨S4x256x16, .f32⟩ : BufTy).Contents (Elt F) → (⟨S4x256x16, .f32⟩ : BufTy).Contents (Elt F) → (⟨S4x256x16, .f32⟩ : BufTy).Contents (Elt F)),
    unary main_arg3 main_v676 ((extractStridedSlice S4x1x16 ![0, 33, 0] · slices_S4x512x16_S4x1x16_0_33_0) : (⟨S4x512x16, .f32⟩ : BufTy).Contents (Elt F) → (⟨S4x1x16, .f32⟩ : BufTy).Contents (Elt F)),
    reshape main_v676 main_v677 rfl shapeCasts_S4x1x16_S4x16,
    unary main_v677 main_v678 (broadcastInDim S4x1x16 ![0, 2] bcast_S4x16_S4x1x16_0_2 : (⟨S4x16, .f32⟩ : BufTy).Contents (Elt F) → (⟨S4x1x16, .f32⟩ : BufTy).Contents (Elt F)),
    unary main_v678 main_v679 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v675 main_v679 main_v680 (mulf : (⟨S4x256x16, .f32⟩ : BufTy).Contents (Elt F) → (⟨S4x256x16, .f32⟩ : BufTy).Contents (Elt F) → (⟨S4x256x16, .f32⟩ : BufTy).Contents (Elt F)),
    nullary main_cst_66 (constant S_ .f32 0x00000000#32),
    binary main_v680 main_cst_66 main_v681 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_67 (constantI S_ 32 33#32),
    unary main_c_67 main_v682 (broadcastInDim S1 ![] bcast_S_S1 : (⟨S_, .i32⟩ : BufTy).Contents (Elt F) → (⟨S1, .i32⟩ : BufTy).Contents (Elt F)),
    ternary main_v663 main_v682 main_v681 main_v683 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps33_ok : (stepOps33 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step33_val (V : Valuation τ sig (Elt Ideal)) :
    after (stepOps33 (F := Ideal)) V (no_index (Proc.devRef .tc main_v675)) = stepH 33 (by decide) (V (Proc.devRef .tc main_arg0)) (V (Proc.devRef .tc main_v3)) (V (Proc.devRef .tc main_arg2)) (V (Proc.devRef .tc main_v655))
    ∧ after (stepOps33 (F := Ideal)) V (no_index (Proc.devRef .tc main_v683)) = stepY 33 (by decide) (V (Proc.devRef .tc main_arg3)) (stepH 33 (by decide) (V (Proc.devRef .tc main_arg0)) (V (Proc.devRef .tc main_v3)) (V (Proc.devRef .tc main_arg2)) (V (Proc.devRef .tc main_v655))) (V (Proc.devRef .tc main_v663)) := by
  simp only [stepOps33]
  after_results_simp
  first | exact ⟨rfl, rfl⟩ | fail "value"
/-- Step 34 of the loop: operations 755 … 776 of the program. -/
abbrev stepOps34 : List (HloOp τ sig (Elt F)) :=
  [ unary main_v3 main_v684 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v675 main_v684 main_v685 (mulf : (⟨S4x256x16, .f32⟩ : BufTy).Contents (Elt F) → (⟨S4x256x16, .f32⟩ : BufTy).Contents (Elt F) → (⟨S4x256x16, .f32⟩ : BufTy).Contents (Elt F)),
    unary main_arg0 main_v686 ((extractStridedSlice S4x1x256 ![0, 34, 0] · slices_S4x512x256_S4x1x256_0_34_0) : (⟨S4x512x256, .f32⟩ : BufTy).Contents (Elt F) → (⟨S4x1x256, .f32⟩ : BufTy).Contents (Elt F)),
    reshape main_v686 main_v687 rfl shapeCasts_S4x1x256_S4x256,
    unary main_v687 main_v688 (broadcastInDim S4x256x1 ![0, 1] bcast_S4x256_S4x256x1_0_1 : (⟨S4x256, .f32⟩ : BufTy).Contents (Elt F) → (⟨S4x256x1, .f32⟩ : BufTy).Contents (Elt F)),
    unary main_arg2 main_v689 ((extractStridedSlice S4x1x16 ![0, 34, 0] · slices_S4x512x16_S4x1x16_0_34_0) : (⟨S4x512x16, .f32⟩ : BufTy).Contents (Elt F) → (⟨S4x1x16, .f32⟩ : BufTy).Contents (Elt F)),
    reshape main_v689 main_v690 rfl shapeCasts_S4x1x16_S4x16,
    unary main_v690 main_v691 (broadcastInDim S4x1x16 ![0, 2] bcast_S4x16_S4x1x16_0_2 : (⟨S4x16, .f32⟩ : BufTy).Contents (Elt F) → (⟨S4x1x16, .f32⟩ : BufTy).Contents (Elt F)),
    unary main_v688 main_v692 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v691 main_v693 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v692 main_v693 main_v694 (mulf : (⟨S4x256x16, .f32⟩ : BufTy).Contents (Elt F) → (⟨S4x256x16, .f32⟩ : BufTy).Contents (Elt F) → (⟨S4x256x16, .f32⟩ : BufTy).Contents (Elt F)),
    binary main_v685 main_v694 main_v695 (addf : (⟨S4x256x16, .f32⟩ : BufTy).Contents (Elt F) → (⟨S4x256x16, .f32⟩ : BufTy).Contents (Elt F) → (⟨S4x256x16, .f32⟩ : BufTy).Contents (Elt F)),
    unary main_arg3 main_v696 ((extractStridedSlice S4x1x16 ![0, 34, 0] · slices_S4x512x16_S4x1x16_0_34_0) : (⟨S4x512x16, .f32⟩ : BufTy).Contents (Elt F) → (⟨S4x1x16, .f32⟩ : BufTy).Contents (Elt F)),
    reshape main_v696 main_v697 rfl shapeCasts_S4x1x16_S4x16,
    unary main_v697 main_v698 (broadcastInDim S4x1x16 ![0, 2] bcast_S4x16_S4x1x16_0_2 : (⟨S4x16, .f32⟩ : BufTy).Contents (Elt F) → (⟨S4x1x16, .f32⟩ : BufTy).Contents (Elt F)),
    unary main_v698 main_v699 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v695 main_v699 main_v700 (mulf : (⟨S4x256x16, .f32⟩ : BufTy).Contents (Elt F) → (⟨S4x256x16, .f32⟩ : BufTy).Contents (Elt F) → (⟨S4x256x16, .f32⟩ : BufTy).Contents (Elt F)),
    nullary main_cst_68 (constant S_ .f32 0x00000000#32),
    binary main_v700 main_cst_68 main_v701 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_69 (constantI S_ 32 34#32),
    unary main_c_69 main_v702 (broadcastInDim S1 ![] bcast_S_S1 : (⟨S_, .i32⟩ : BufTy).Contents (Elt F) → (⟨S1, .i32⟩ : BufTy).Contents (Elt F)),
    ternary main_v683 main_v702 main_v701 main_v703 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps34_ok : (stepOps34 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step34_val (V : Valuation τ sig (Elt Ideal)) :
    after (stepOps34 (F := Ideal)) V (no_index (Proc.devRef .tc main_v695)) = stepH 34 (by decide) (V (Proc.devRef .tc main_arg0)) (V (Proc.devRef .tc main_v3)) (V (Proc.devRef .tc main_arg2)) (V (Proc.devRef .tc main_v675))
    ∧ after (stepOps34 (F := Ideal)) V (no_index (Proc.devRef .tc main_v703)) = stepY 34 (by decide) (V (Proc.devRef .tc main_arg3)) (stepH 34 (by decide) (V (Proc.devRef .tc main_arg0)) (V (Proc.devRef .tc main_v3)) (V (Proc.devRef .tc main_arg2)) (V (Proc.devRef .tc main_v675))) (V (Proc.devRef .tc main_v683)) := by
  simp only [stepOps34]
  after_results_simp
  first | exact ⟨rfl, rfl⟩ | fail "value"
/-- Step 35 of the loop: operations 777 … 798 of the program. -/
abbrev stepOps35 : List (HloOp τ sig (Elt F)) :=
  [ unary main_v3 main_v704 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v695 main_v704 main_v705 (mulf : (⟨S4x256x16, .f32⟩ : BufTy).Contents (Elt F) → (⟨S4x256x16, .f32⟩ : BufTy).Contents (Elt F) → (⟨S4x256x16, .f32⟩ : BufTy).Contents (Elt F)),
    unary main_arg0 main_v706 ((extractStridedSlice S4x1x256 ![0, 35, 0] · slices_S4x512x256_S4x1x256_0_35_0) : (⟨S4x512x256, .f32⟩ : BufTy).Contents (Elt F) → (⟨S4x1x256, .f32⟩ : BufTy).Contents (Elt F)),
    reshape main_v706 main_v707 rfl shapeCasts_S4x1x256_S4x256,
    unary main_v707 main_v708 (broadcastInDim S4x256x1 ![0, 1] bcast_S4x256_S4x256x1_0_1 : (⟨S4x256, .f32⟩ : BufTy).Contents (Elt F) → (⟨S4x256x1, .f32⟩ : BufTy).Contents (Elt F)),
    unary main_arg2 main_v709 ((extractStridedSlice S4x1x16 ![0, 35, 0] · slices_S4x512x16_S4x1x16_0_35_0) : (⟨S4x512x16, .f32⟩ : BufTy).Contents (Elt F) → (⟨S4x1x16, .f32⟩ : BufTy).Contents (Elt F)),
    reshape main_v709 main_v710 rfl shapeCasts_S4x1x16_S4x16,
    unary main_v710 main_v711 (broadcastInDim S4x1x16 ![0, 2] bcast_S4x16_S4x1x16_0_2 : (⟨S4x16, .f32⟩ : BufTy).Contents (Elt F) → (⟨S4x1x16, .f32⟩ : BufTy).Contents (Elt F)),
    unary main_v708 main_v712 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v711 main_v713 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v712 main_v713 main_v714 (mulf : (⟨S4x256x16, .f32⟩ : BufTy).Contents (Elt F) → (⟨S4x256x16, .f32⟩ : BufTy).Contents (Elt F) → (⟨S4x256x16, .f32⟩ : BufTy).Contents (Elt F)),
    binary main_v705 main_v714 main_v715 (addf : (⟨S4x256x16, .f32⟩ : BufTy).Contents (Elt F) → (⟨S4x256x16, .f32⟩ : BufTy).Contents (Elt F) → (⟨S4x256x16, .f32⟩ : BufTy).Contents (Elt F)),
    unary main_arg3 main_v716 ((extractStridedSlice S4x1x16 ![0, 35, 0] · slices_S4x512x16_S4x1x16_0_35_0) : (⟨S4x512x16, .f32⟩ : BufTy).Contents (Elt F) → (⟨S4x1x16, .f32⟩ : BufTy).Contents (Elt F)),
    reshape main_v716 main_v717 rfl shapeCasts_S4x1x16_S4x16,
    unary main_v717 main_v718 (broadcastInDim S4x1x16 ![0, 2] bcast_S4x16_S4x1x16_0_2 : (⟨S4x16, .f32⟩ : BufTy).Contents (Elt F) → (⟨S4x1x16, .f32⟩ : BufTy).Contents (Elt F)),
    unary main_v718 main_v719 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v715 main_v719 main_v720 (mulf : (⟨S4x256x16, .f32⟩ : BufTy).Contents (Elt F) → (⟨S4x256x16, .f32⟩ : BufTy).Contents (Elt F) → (⟨S4x256x16, .f32⟩ : BufTy).Contents (Elt F)),
    nullary main_cst_70 (constant S_ .f32 0x00000000#32),
    binary main_v720 main_cst_70 main_v721 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_71 (constantI S_ 32 35#32),
    unary main_c_71 main_v722 (broadcastInDim S1 ![] bcast_S_S1 : (⟨S_, .i32⟩ : BufTy).Contents (Elt F) → (⟨S1, .i32⟩ : BufTy).Contents (Elt F)),
    ternary main_v703 main_v722 main_v721 main_v723 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps35_ok : (stepOps35 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step35_val (V : Valuation τ sig (Elt Ideal)) :
    after (stepOps35 (F := Ideal)) V (no_index (Proc.devRef .tc main_v715)) = stepH 35 (by decide) (V (Proc.devRef .tc main_arg0)) (V (Proc.devRef .tc main_v3)) (V (Proc.devRef .tc main_arg2)) (V (Proc.devRef .tc main_v695))
    ∧ after (stepOps35 (F := Ideal)) V (no_index (Proc.devRef .tc main_v723)) = stepY 35 (by decide) (V (Proc.devRef .tc main_arg3)) (stepH 35 (by decide) (V (Proc.devRef .tc main_arg0)) (V (Proc.devRef .tc main_v3)) (V (Proc.devRef .tc main_arg2)) (V (Proc.devRef .tc main_v695))) (V (Proc.devRef .tc main_v703)) := by
  simp only [stepOps35]
  after_results_simp
  first | exact ⟨rfl, rfl⟩ | fail "value"
/-- Step 36 of the loop: operations 799 … 820 of the program. -/
abbrev stepOps36 : List (HloOp τ sig (Elt F)) :=
  [ unary main_v3 main_v724 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v715 main_v724 main_v725 (mulf : (⟨S4x256x16, .f32⟩ : BufTy).Contents (Elt F) → (⟨S4x256x16, .f32⟩ : BufTy).Contents (Elt F) → (⟨S4x256x16, .f32⟩ : BufTy).Contents (Elt F)),
    unary main_arg0 main_v726 ((extractStridedSlice S4x1x256 ![0, 36, 0] · slices_S4x512x256_S4x1x256_0_36_0) : (⟨S4x512x256, .f32⟩ : BufTy).Contents (Elt F) → (⟨S4x1x256, .f32⟩ : BufTy).Contents (Elt F)),
    reshape main_v726 main_v727 rfl shapeCasts_S4x1x256_S4x256,
    unary main_v727 main_v728 (broadcastInDim S4x256x1 ![0, 1] bcast_S4x256_S4x256x1_0_1 : (⟨S4x256, .f32⟩ : BufTy).Contents (Elt F) → (⟨S4x256x1, .f32⟩ : BufTy).Contents (Elt F)),
    unary main_arg2 main_v729 ((extractStridedSlice S4x1x16 ![0, 36, 0] · slices_S4x512x16_S4x1x16_0_36_0) : (⟨S4x512x16, .f32⟩ : BufTy).Contents (Elt F) → (⟨S4x1x16, .f32⟩ : BufTy).Contents (Elt F)),
    reshape main_v729 main_v730 rfl shapeCasts_S4x1x16_S4x16,
    unary main_v730 main_v731 (broadcastInDim S4x1x16 ![0, 2] bcast_S4x16_S4x1x16_0_2 : (⟨S4x16, .f32⟩ : BufTy).Contents (Elt F) → (⟨S4x1x16, .f32⟩ : BufTy).Contents (Elt F)),
    unary main_v728 main_v732 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v731 main_v733 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v732 main_v733 main_v734 (mulf : (⟨S4x256x16, .f32⟩ : BufTy).Contents (Elt F) → (⟨S4x256x16, .f32⟩ : BufTy).Contents (Elt F) → (⟨S4x256x16, .f32⟩ : BufTy).Contents (Elt F)),
    binary main_v725 main_v734 main_v735 (addf : (⟨S4x256x16, .f32⟩ : BufTy).Contents (Elt F) → (⟨S4x256x16, .f32⟩ : BufTy).Contents (Elt F) → (⟨S4x256x16, .f32⟩ : BufTy).Contents (Elt F)),
    unary main_arg3 main_v736 ((extractStridedSlice S4x1x16 ![0, 36, 0] · slices_S4x512x16_S4x1x16_0_36_0) : (⟨S4x512x16, .f32⟩ : BufTy).Contents (Elt F) → (⟨S4x1x16, .f32⟩ : BufTy).Contents (Elt F)),
    reshape main_v736 main_v737 rfl shapeCasts_S4x1x16_S4x16,
    unary main_v737 main_v738 (broadcastInDim S4x1x16 ![0, 2] bcast_S4x16_S4x1x16_0_2 : (⟨S4x16, .f32⟩ : BufTy).Contents (Elt F) → (⟨S4x1x16, .f32⟩ : BufTy).Contents (Elt F)),
    unary main_v738 main_v739 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v735 main_v739 main_v740 (mulf : (⟨S4x256x16, .f32⟩ : BufTy).Contents (Elt F) → (⟨S4x256x16, .f32⟩ : BufTy).Contents (Elt F) → (⟨S4x256x16, .f32⟩ : BufTy).Contents (Elt F)),
    nullary main_cst_72 (constant S_ .f32 0x00000000#32),
    binary main_v740 main_cst_72 main_v741 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_73 (constantI S_ 32 36#32),
    unary main_c_73 main_v742 (broadcastInDim S1 ![] bcast_S_S1 : (⟨S_, .i32⟩ : BufTy).Contents (Elt F) → (⟨S1, .i32⟩ : BufTy).Contents (Elt F)),
    ternary main_v723 main_v742 main_v741 main_v743 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps36_ok : (stepOps36 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step36_val (V : Valuation τ sig (Elt Ideal)) :
    after (stepOps36 (F := Ideal)) V (no_index (Proc.devRef .tc main_v735)) = stepH 36 (by decide) (V (Proc.devRef .tc main_arg0)) (V (Proc.devRef .tc main_v3)) (V (Proc.devRef .tc main_arg2)) (V (Proc.devRef .tc main_v715))
    ∧ after (stepOps36 (F := Ideal)) V (no_index (Proc.devRef .tc main_v743)) = stepY 36 (by decide) (V (Proc.devRef .tc main_arg3)) (stepH 36 (by decide) (V (Proc.devRef .tc main_arg0)) (V (Proc.devRef .tc main_v3)) (V (Proc.devRef .tc main_arg2)) (V (Proc.devRef .tc main_v715))) (V (Proc.devRef .tc main_v723)) := by
  simp only [stepOps36]
  after_results_simp
  first | exact ⟨rfl, rfl⟩ | fail "value"
/-- Step 37 of the loop: operations 821 … 842 of the program. -/
abbrev stepOps37 : List (HloOp τ sig (Elt F)) :=
  [ unary main_v3 main_v744 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v735 main_v744 main_v745 (mulf : (⟨S4x256x16, .f32⟩ : BufTy).Contents (Elt F) → (⟨S4x256x16, .f32⟩ : BufTy).Contents (Elt F) → (⟨S4x256x16, .f32⟩ : BufTy).Contents (Elt F)),
    unary main_arg0 main_v746 ((extractStridedSlice S4x1x256 ![0, 37, 0] · slices_S4x512x256_S4x1x256_0_37_0) : (⟨S4x512x256, .f32⟩ : BufTy).Contents (Elt F) → (⟨S4x1x256, .f32⟩ : BufTy).Contents (Elt F)),
    reshape main_v746 main_v747 rfl shapeCasts_S4x1x256_S4x256,
    unary main_v747 main_v748 (broadcastInDim S4x256x1 ![0, 1] bcast_S4x256_S4x256x1_0_1 : (⟨S4x256, .f32⟩ : BufTy).Contents (Elt F) → (⟨S4x256x1, .f32⟩ : BufTy).Contents (Elt F)),
    unary main_arg2 main_v749 ((extractStridedSlice S4x1x16 ![0, 37, 0] · slices_S4x512x16_S4x1x16_0_37_0) : (⟨S4x512x16, .f32⟩ : BufTy).Contents (Elt F) → (⟨S4x1x16, .f32⟩ : BufTy).Contents (Elt F)),
    reshape main_v749 main_v750 rfl shapeCasts_S4x1x16_S4x16,
    unary main_v750 main_v751 (broadcastInDim S4x1x16 ![0, 2] bcast_S4x16_S4x1x16_0_2 : (⟨S4x16, .f32⟩ : BufTy).Contents (Elt F) → (⟨S4x1x16, .f32⟩ : BufTy).Contents (Elt F)),
    unary main_v748 main_v752 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v751 main_v753 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v752 main_v753 main_v754 (mulf : (⟨S4x256x16, .f32⟩ : BufTy).Contents (Elt F) → (⟨S4x256x16, .f32⟩ : BufTy).Contents (Elt F) → (⟨S4x256x16, .f32⟩ : BufTy).Contents (Elt F)),
    binary main_v745 main_v754 main_v755 (addf : (⟨S4x256x16, .f32⟩ : BufTy).Contents (Elt F) → (⟨S4x256x16, .f32⟩ : BufTy).Contents (Elt F) → (⟨S4x256x16, .f32⟩ : BufTy).Contents (Elt F)),
    unary main_arg3 main_v756 ((extractStridedSlice S4x1x16 ![0, 37, 0] · slices_S4x512x16_S4x1x16_0_37_0) : (⟨S4x512x16, .f32⟩ : BufTy).Contents (Elt F) → (⟨S4x1x16, .f32⟩ : BufTy).Contents (Elt F)),
    reshape main_v756 main_v757 rfl shapeCasts_S4x1x16_S4x16,
    unary main_v757 main_v758 (broadcastInDim S4x1x16 ![0, 2] bcast_S4x16_S4x1x16_0_2 : (⟨S4x16, .f32⟩ : BufTy).Contents (Elt F) → (⟨S4x1x16, .f32⟩ : BufTy).Contents (Elt F)),
    unary main_v758 main_v759 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v755 main_v759 main_v760 (mulf : (⟨S4x256x16, .f32⟩ : BufTy).Contents (Elt F) → (⟨S4x256x16, .f32⟩ : BufTy).Contents (Elt F) → (⟨S4x256x16, .f32⟩ : BufTy).Contents (Elt F)),
    nullary main_cst_74 (constant S_ .f32 0x00000000#32),
    binary main_v760 main_cst_74 main_v761 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_75 (constantI S_ 32 37#32),
    unary main_c_75 main_v762 (broadcastInDim S1 ![] bcast_S_S1 : (⟨S_, .i32⟩ : BufTy).Contents (Elt F) → (⟨S1, .i32⟩ : BufTy).Contents (Elt F)),
    ternary main_v743 main_v762 main_v761 main_v763 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps37_ok : (stepOps37 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step37_val (V : Valuation τ sig (Elt Ideal)) :
    after (stepOps37 (F := Ideal)) V (no_index (Proc.devRef .tc main_v755)) = stepH 37 (by decide) (V (Proc.devRef .tc main_arg0)) (V (Proc.devRef .tc main_v3)) (V (Proc.devRef .tc main_arg2)) (V (Proc.devRef .tc main_v735))
    ∧ after (stepOps37 (F := Ideal)) V (no_index (Proc.devRef .tc main_v763)) = stepY 37 (by decide) (V (Proc.devRef .tc main_arg3)) (stepH 37 (by decide) (V (Proc.devRef .tc main_arg0)) (V (Proc.devRef .tc main_v3)) (V (Proc.devRef .tc main_arg2)) (V (Proc.devRef .tc main_v735))) (V (Proc.devRef .tc main_v743)) := by
  simp only [stepOps37]
  after_results_simp
  first | exact ⟨rfl, rfl⟩ | fail "value"
/-- Step 38 of the loop: operations 843 … 864 of the program. -/
abbrev stepOps38 : List (HloOp τ sig (Elt F)) :=
  [ unary main_v3 main_v764 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v755 main_v764 main_v765 (mulf : (⟨S4x256x16, .f32⟩ : BufTy).Contents (Elt F) → (⟨S4x256x16, .f32⟩ : BufTy).Contents (Elt F) → (⟨S4x256x16, .f32⟩ : BufTy).Contents (Elt F)),
    unary main_arg0 main_v766 ((extractStridedSlice S4x1x256 ![0, 38, 0] · slices_S4x512x256_S4x1x256_0_38_0) : (⟨S4x512x256, .f32⟩ : BufTy).Contents (Elt F) → (⟨S4x1x256, .f32⟩ : BufTy).Contents (Elt F)),
    reshape main_v766 main_v767 rfl shapeCasts_S4x1x256_S4x256,
    unary main_v767 main_v768 (broadcastInDim S4x256x1 ![0, 1] bcast_S4x256_S4x256x1_0_1 : (⟨S4x256, .f32⟩ : BufTy).Contents (Elt F) → (⟨S4x256x1, .f32⟩ : BufTy).Contents (Elt F)),
    unary main_arg2 main_v769 ((extractStridedSlice S4x1x16 ![0, 38, 0] · slices_S4x512x16_S4x1x16_0_38_0) : (⟨S4x512x16, .f32⟩ : BufTy).Contents (Elt F) → (⟨S4x1x16, .f32⟩ : BufTy).Contents (Elt F)),
    reshape main_v769 main_v770 rfl shapeCasts_S4x1x16_S4x16,
    unary main_v770 main_v771 (broadcastInDim S4x1x16 ![0, 2] bcast_S4x16_S4x1x16_0_2 : (⟨S4x16, .f32⟩ : BufTy).Contents (Elt F) → (⟨S4x1x16, .f32⟩ : BufTy).Contents (Elt F)),
    unary main_v768 main_v772 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v771 main_v773 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v772 main_v773 main_v774 (mulf : (⟨S4x256x16, .f32⟩ : BufTy).Contents (Elt F) → (⟨S4x256x16, .f32⟩ : BufTy).Contents (Elt F) → (⟨S4x256x16, .f32⟩ : BufTy).Contents (Elt F)),
    binary main_v765 main_v774 main_v775 (addf : (⟨S4x256x16, .f32⟩ : BufTy).Contents (Elt F) → (⟨S4x256x16, .f32⟩ : BufTy).Contents (Elt F) → (⟨S4x256x16, .f32⟩ : BufTy).Contents (Elt F)),
    unary main_arg3 main_v776 ((extractStridedSlice S4x1x16 ![0, 38, 0] · slices_S4x512x16_S4x1x16_0_38_0) : (⟨S4x512x16, .f32⟩ : BufTy).Contents (Elt F) → (⟨S4x1x16, .f32⟩ : BufTy).Contents (Elt F)),
    reshape main_v776 main_v777 rfl shapeCasts_S4x1x16_S4x16,
    unary main_v777 main_v778 (broadcastInDim S4x1x16 ![0, 2] bcast_S4x16_S4x1x16_0_2 : (⟨S4x16, .f32⟩ : BufTy).Contents (Elt F) → (⟨S4x1x16, .f32⟩ : BufTy).Contents (Elt F)),
    unary main_v778 main_v779 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v775 main_v779 main_v780 (mulf : (⟨S4x256x16, .f32⟩ : BufTy).Contents (Elt F) → (⟨S4x256x16, .f32⟩ : BufTy).Contents (Elt F) → (⟨S4x256x16, .f32⟩ : BufTy).Contents (Elt F)),
    nullary main_cst_76 (constant S_ .f32 0x00000000#32),
    binary main_v780 main_cst_76 main_v781 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_77 (constantI S_ 32 38#32),
    unary main_c_77 main_v782 (broadcastInDim S1 ![] bcast_S_S1 : (⟨S_, .i32⟩ : BufTy).Contents (Elt F) → (⟨S1, .i32⟩ : BufTy).Contents (Elt F)),
    ternary main_v763 main_v782 main_v781 main_v783 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps38_ok : (stepOps38 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step38_val (V : Valuation τ sig (Elt Ideal)) :
    after (stepOps38 (F := Ideal)) V (no_index (Proc.devRef .tc main_v775)) = stepH 38 (by decide) (V (Proc.devRef .tc main_arg0)) (V (Proc.devRef .tc main_v3)) (V (Proc.devRef .tc main_arg2)) (V (Proc.devRef .tc main_v755))
    ∧ after (stepOps38 (F := Ideal)) V (no_index (Proc.devRef .tc main_v783)) = stepY 38 (by decide) (V (Proc.devRef .tc main_arg3)) (stepH 38 (by decide) (V (Proc.devRef .tc main_arg0)) (V (Proc.devRef .tc main_v3)) (V (Proc.devRef .tc main_arg2)) (V (Proc.devRef .tc main_v755))) (V (Proc.devRef .tc main_v763)) := by
  simp only [stepOps38]
  after_results_simp
  first | exact ⟨rfl, rfl⟩ | fail "value"
/-- Step 39 of the loop: operations 865 … 886 of the program. -/
abbrev stepOps39 : List (HloOp τ sig (Elt F)) :=
  [ unary main_v3 main_v784 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v775 main_v784 main_v785 (mulf : (⟨S4x256x16, .f32⟩ : BufTy).Contents (Elt F) → (⟨S4x256x16, .f32⟩ : BufTy).Contents (Elt F) → (⟨S4x256x16, .f32⟩ : BufTy).Contents (Elt F)),
    unary main_arg0 main_v786 ((extractStridedSlice S4x1x256 ![0, 39, 0] · slices_S4x512x256_S4x1x256_0_39_0) : (⟨S4x512x256, .f32⟩ : BufTy).Contents (Elt F) → (⟨S4x1x256, .f32⟩ : BufTy).Contents (Elt F)),
    reshape main_v786 main_v787 rfl shapeCasts_S4x1x256_S4x256,
    unary main_v787 main_v788 (broadcastInDim S4x256x1 ![0, 1] bcast_S4x256_S4x256x1_0_1 : (⟨S4x256, .f32⟩ : BufTy).Contents (Elt F) → (⟨S4x256x1, .f32⟩ : BufTy).Contents (Elt F)),
    unary main_arg2 main_v789 ((extractStridedSlice S4x1x16 ![0, 39, 0] · slices_S4x512x16_S4x1x16_0_39_0) : (⟨S4x512x16, .f32⟩ : BufTy).Contents (Elt F) → (⟨S4x1x16, .f32⟩ : BufTy).Contents (Elt F)),
    reshape main_v789 main_v790 rfl shapeCasts_S4x1x16_S4x16,
    unary main_v790 main_v791 (broadcastInDim S4x1x16 ![0, 2] bcast_S4x16_S4x1x16_0_2 : (⟨S4x16, .f32⟩ : BufTy).Contents (Elt F) → (⟨S4x1x16, .f32⟩ : BufTy).Contents (Elt F)),
    unary main_v788 main_v792 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v791 main_v793 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v792 main_v793 main_v794 (mulf : (⟨S4x256x16, .f32⟩ : BufTy).Contents (Elt F) → (⟨S4x256x16, .f32⟩ : BufTy).Contents (Elt F) → (⟨S4x256x16, .f32⟩ : BufTy).Contents (Elt F)),
    binary main_v785 main_v794 main_v795 (addf : (⟨S4x256x16, .f32⟩ : BufTy).Contents (Elt F) → (⟨S4x256x16, .f32⟩ : BufTy).Contents (Elt F) → (⟨S4x256x16, .f32⟩ : BufTy).Contents (Elt F)),
    unary main_arg3 main_v796 ((extractStridedSlice S4x1x16 ![0, 39, 0] · slices_S4x512x16_S4x1x16_0_39_0) : (⟨S4x512x16, .f32⟩ : BufTy).Contents (Elt F) → (⟨S4x1x16, .f32⟩ : BufTy).Contents (Elt F)),
    reshape main_v796 main_v797 rfl shapeCasts_S4x1x16_S4x16,
    unary main_v797 main_v798 (broadcastInDim S4x1x16 ![0, 2] bcast_S4x16_S4x1x16_0_2 : (⟨S4x16, .f32⟩ : BufTy).Contents (Elt F) → (⟨S4x1x16, .f32⟩ : BufTy).Contents (Elt F)),
    unary main_v798 main_v799 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v795 main_v799 main_v800 (mulf : (⟨S4x256x16, .f32⟩ : BufTy).Contents (Elt F) → (⟨S4x256x16, .f32⟩ : BufTy).Contents (Elt F) → (⟨S4x256x16, .f32⟩ : BufTy).Contents (Elt F)),
    nullary main_cst_78 (constant S_ .f32 0x00000000#32),
    binary main_v800 main_cst_78 main_v801 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_79 (constantI S_ 32 39#32),
    unary main_c_79 main_v802 (broadcastInDim S1 ![] bcast_S_S1 : (⟨S_, .i32⟩ : BufTy).Contents (Elt F) → (⟨S1, .i32⟩ : BufTy).Contents (Elt F)),
    ternary main_v783 main_v802 main_v801 main_v803 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps39_ok : (stepOps39 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step39_val (V : Valuation τ sig (Elt Ideal)) :
    after (stepOps39 (F := Ideal)) V (no_index (Proc.devRef .tc main_v795)) = stepH 39 (by decide) (V (Proc.devRef .tc main_arg0)) (V (Proc.devRef .tc main_v3)) (V (Proc.devRef .tc main_arg2)) (V (Proc.devRef .tc main_v775))
    ∧ after (stepOps39 (F := Ideal)) V (no_index (Proc.devRef .tc main_v803)) = stepY 39 (by decide) (V (Proc.devRef .tc main_arg3)) (stepH 39 (by decide) (V (Proc.devRef .tc main_arg0)) (V (Proc.devRef .tc main_v3)) (V (Proc.devRef .tc main_arg2)) (V (Proc.devRef .tc main_v775))) (V (Proc.devRef .tc main_v783)) := by
  simp only [stepOps39]
  after_results_simp
  first | exact ⟨rfl, rfl⟩ | fail "value"
/-- Step 40 of the loop: operations 887 … 908 of the program. -/
abbrev stepOps40 : List (HloOp τ sig (Elt F)) :=
  [ unary main_v3 main_v804 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v795 main_v804 main_v805 (mulf : (⟨S4x256x16, .f32⟩ : BufTy).Contents (Elt F) → (⟨S4x256x16, .f32⟩ : BufTy).Contents (Elt F) → (⟨S4x256x16, .f32⟩ : BufTy).Contents (Elt F)),
    unary main_arg0 main_v806 ((extractStridedSlice S4x1x256 ![0, 40, 0] · slices_S4x512x256_S4x1x256_0_40_0) : (⟨S4x512x256, .f32⟩ : BufTy).Contents (Elt F) → (⟨S4x1x256, .f32⟩ : BufTy).Contents (Elt F)),
    reshape main_v806 main_v807 rfl shapeCasts_S4x1x256_S4x256,
    unary main_v807 main_v808 (broadcastInDim S4x256x1 ![0, 1] bcast_S4x256_S4x256x1_0_1 : (⟨S4x256, .f32⟩ : BufTy).Contents (Elt F) → (⟨S4x256x1, .f32⟩ : BufTy).Contents (Elt F)),
    unary main_arg2 main_v809 ((extractStridedSlice S4x1x16 ![0, 40, 0] · slices_S4x512x16_S4x1x16_0_40_0) : (⟨S4x512x16, .f32⟩ : BufTy).Contents (Elt F) → (⟨S4x1x16, .f32⟩ : BufTy).Contents (Elt F)),
    reshape main_v809 main_v810 rfl shapeCasts_S4x1x16_S4x16,
    unary main_v810 main_v811 (broadcastInDim S4x1x16 ![0, 2] bcast_S4x16_S4x1x16_0_2 : (⟨S4x16, .f32⟩ : BufTy).Contents (Elt F) → (⟨S4x1x16, .f32⟩ : BufTy).Contents (Elt F)),
    unary main_v808 main_v812 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v811 main_v813 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v812 main_v813 main_v814 (mulf : (⟨S4x256x16, .f32⟩ : BufTy).Contents (Elt F) → (⟨S4x256x16, .f32⟩ : BufTy).Contents (Elt F) → (⟨S4x256x16, .f32⟩ : BufTy).Contents (Elt F)),
    binary main_v805 main_v814 main_v815 (addf : (⟨S4x256x16, .f32⟩ : BufTy).Contents (Elt F) → (⟨S4x256x16, .f32⟩ : BufTy).Contents (Elt F) → (⟨S4x256x16, .f32⟩ : BufTy).Contents (Elt F)),
    unary main_arg3 main_v816 ((extractStridedSlice S4x1x16 ![0, 40, 0] · slices_S4x512x16_S4x1x16_0_40_0) : (⟨S4x512x16, .f32⟩ : BufTy).Contents (Elt F) → (⟨S4x1x16, .f32⟩ : BufTy).Contents (Elt F)),
    reshape main_v816 main_v817 rfl shapeCasts_S4x1x16_S4x16,
    unary main_v817 main_v818 (broadcastInDim S4x1x16 ![0, 2] bcast_S4x16_S4x1x16_0_2 : (⟨S4x16, .f32⟩ : BufTy).Contents (Elt F) → (⟨S4x1x16, .f32⟩ : BufTy).Contents (Elt F)),
    unary main_v818 main_v819 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v815 main_v819 main_v820 (mulf : (⟨S4x256x16, .f32⟩ : BufTy).Contents (Elt F) → (⟨S4x256x16, .f32⟩ : BufTy).Contents (Elt F) → (⟨S4x256x16, .f32⟩ : BufTy).Contents (Elt F)),
    nullary main_cst_80 (constant S_ .f32 0x00000000#32),
    binary main_v820 main_cst_80 main_v821 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_81 (constantI S_ 32 40#32),
    unary main_c_81 main_v822 (broadcastInDim S1 ![] bcast_S_S1 : (⟨S_, .i32⟩ : BufTy).Contents (Elt F) → (⟨S1, .i32⟩ : BufTy).Contents (Elt F)),
    ternary main_v803 main_v822 main_v821 main_v823 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps40_ok : (stepOps40 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step40_val (V : Valuation τ sig (Elt Ideal)) :
    after (stepOps40 (F := Ideal)) V (no_index (Proc.devRef .tc main_v815)) = stepH 40 (by decide) (V (Proc.devRef .tc main_arg0)) (V (Proc.devRef .tc main_v3)) (V (Proc.devRef .tc main_arg2)) (V (Proc.devRef .tc main_v795))
    ∧ after (stepOps40 (F := Ideal)) V (no_index (Proc.devRef .tc main_v823)) = stepY 40 (by decide) (V (Proc.devRef .tc main_arg3)) (stepH 40 (by decide) (V (Proc.devRef .tc main_arg0)) (V (Proc.devRef .tc main_v3)) (V (Proc.devRef .tc main_arg2)) (V (Proc.devRef .tc main_v795))) (V (Proc.devRef .tc main_v803)) := by
  simp only [stepOps40]
  after_results_simp
  first | exact ⟨rfl, rfl⟩ | fail "value"
/-- Step 41 of the loop: operations 909 … 930 of the program. -/
abbrev stepOps41 : List (HloOp τ sig (Elt F)) :=
  [ unary main_v3 main_v824 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v815 main_v824 main_v825 (mulf : (⟨S4x256x16, .f32⟩ : BufTy).Contents (Elt F) → (⟨S4x256x16, .f32⟩ : BufTy).Contents (Elt F) → (⟨S4x256x16, .f32⟩ : BufTy).Contents (Elt F)),
    unary main_arg0 main_v826 ((extractStridedSlice S4x1x256 ![0, 41, 0] · slices_S4x512x256_S4x1x256_0_41_0) : (⟨S4x512x256, .f32⟩ : BufTy).Contents (Elt F) → (⟨S4x1x256, .f32⟩ : BufTy).Contents (Elt F)),
    reshape main_v826 main_v827 rfl shapeCasts_S4x1x256_S4x256,
    unary main_v827 main_v828 (broadcastInDim S4x256x1 ![0, 1] bcast_S4x256_S4x256x1_0_1 : (⟨S4x256, .f32⟩ : BufTy).Contents (Elt F) → (⟨S4x256x1, .f32⟩ : BufTy).Contents (Elt F)),
    unary main_arg2 main_v829 ((extractStridedSlice S4x1x16 ![0, 41, 0] · slices_S4x512x16_S4x1x16_0_41_0) : (⟨S4x512x16, .f32⟩ : BufTy).Contents (Elt F) → (⟨S4x1x16, .f32⟩ : BufTy).Contents (Elt F)),
    reshape main_v829 main_v830 rfl shapeCasts_S4x1x16_S4x16,
    unary main_v830 main_v831 (broadcastInDim S4x1x16 ![0, 2] bcast_S4x16_S4x1x16_0_2 : (⟨S4x16, .f32⟩ : BufTy).Contents (Elt F) → (⟨S4x1x16, .f32⟩ : BufTy).Contents (Elt F)),
    unary main_v828 main_v832 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v831 main_v833 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v832 main_v833 main_v834 (mulf : (⟨S4x256x16, .f32⟩ : BufTy).Contents (Elt F) → (⟨S4x256x16, .f32⟩ : BufTy).Contents (Elt F) → (⟨S4x256x16, .f32⟩ : BufTy).Contents (Elt F)),
    binary main_v825 main_v834 main_v835 (addf : (⟨S4x256x16, .f32⟩ : BufTy).Contents (Elt F) → (⟨S4x256x16, .f32⟩ : BufTy).Contents (Elt F) → (⟨S4x256x16, .f32⟩ : BufTy).Contents (Elt F)),
    unary main_arg3 main_v836 ((extractStridedSlice S4x1x16 ![0, 41, 0] · slices_S4x512x16_S4x1x16_0_41_0) : (⟨S4x512x16, .f32⟩ : BufTy).Contents (Elt F) → (⟨S4x1x16, .f32⟩ : BufTy).Contents (Elt F)),
    reshape main_v836 main_v837 rfl shapeCasts_S4x1x16_S4x16,
    unary main_v837 main_v838 (broadcastInDim S4x1x16 ![0, 2] bcast_S4x16_S4x1x16_0_2 : (⟨S4x16, .f32⟩ : BufTy).Contents (Elt F) → (⟨S4x1x16, .f32⟩ : BufTy).Contents (Elt F)),
    unary main_v838 main_v839 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v835 main_v839 main_v840 (mulf : (⟨S4x256x16, .f32⟩ : BufTy).Contents (Elt F) → (⟨S4x256x16, .f32⟩ : BufTy).Contents (Elt F) → (⟨S4x256x16, .f32⟩ : BufTy).Contents (Elt F)),
    nullary main_cst_82 (constant S_ .f32 0x00000000#32),
    binary main_v840 main_cst_82 main_v841 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_83 (constantI S_ 32 41#32),
    unary main_c_83 main_v842 (broadcastInDim S1 ![] bcast_S_S1 : (⟨S_, .i32⟩ : BufTy).Contents (Elt F) → (⟨S1, .i32⟩ : BufTy).Contents (Elt F)),
    ternary main_v823 main_v842 main_v841 main_v843 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps41_ok : (stepOps41 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step41_val (V : Valuation τ sig (Elt Ideal)) :
    after (stepOps41 (F := Ideal)) V (no_index (Proc.devRef .tc main_v835)) = stepH 41 (by decide) (V (Proc.devRef .tc main_arg0)) (V (Proc.devRef .tc main_v3)) (V (Proc.devRef .tc main_arg2)) (V (Proc.devRef .tc main_v815))
    ∧ after (stepOps41 (F := Ideal)) V (no_index (Proc.devRef .tc main_v843)) = stepY 41 (by decide) (V (Proc.devRef .tc main_arg3)) (stepH 41 (by decide) (V (Proc.devRef .tc main_arg0)) (V (Proc.devRef .tc main_v3)) (V (Proc.devRef .tc main_arg2)) (V (Proc.devRef .tc main_v815))) (V (Proc.devRef .tc main_v823)) := by
  simp only [stepOps41]
  after_results_simp
  first | exact ⟨rfl, rfl⟩ | fail "value"
/-- Step 42 of the loop: operations 931 … 952 of the program. -/
abbrev stepOps42 : List (HloOp τ sig (Elt F)) :=
  [ unary main_v3 main_v844 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v835 main_v844 main_v845 (mulf : (⟨S4x256x16, .f32⟩ : BufTy).Contents (Elt F) → (⟨S4x256x16, .f32⟩ : BufTy).Contents (Elt F) → (⟨S4x256x16, .f32⟩ : BufTy).Contents (Elt F)),
    unary main_arg0 main_v846 ((extractStridedSlice S4x1x256 ![0, 42, 0] · slices_S4x512x256_S4x1x256_0_42_0) : (⟨S4x512x256, .f32⟩ : BufTy).Contents (Elt F) → (⟨S4x1x256, .f32⟩ : BufTy).Contents (Elt F)),
    reshape main_v846 main_v847 rfl shapeCasts_S4x1x256_S4x256,
    unary main_v847 main_v848 (broadcastInDim S4x256x1 ![0, 1] bcast_S4x256_S4x256x1_0_1 : (⟨S4x256, .f32⟩ : BufTy).Contents (Elt F) → (⟨S4x256x1, .f32⟩ : BufTy).Contents (Elt F)),
    unary main_arg2 main_v849 ((extractStridedSlice S4x1x16 ![0, 42, 0] · slices_S4x512x16_S4x1x16_0_42_0) : (⟨S4x512x16, .f32⟩ : BufTy).Contents (Elt F) → (⟨S4x1x16, .f32⟩ : BufTy).Contents (Elt F)),
    reshape main_v849 main_v850 rfl shapeCasts_S4x1x16_S4x16,
    unary main_v850 main_v851 (broadcastInDim S4x1x16 ![0, 2] bcast_S4x16_S4x1x16_0_2 : (⟨S4x16, .f32⟩ : BufTy).Contents (Elt F) → (⟨S4x1x16, .f32⟩ : BufTy).Contents (Elt F)),
    unary main_v848 main_v852 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v851 main_v853 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v852 main_v853 main_v854 (mulf : (⟨S4x256x16, .f32⟩ : BufTy).Contents (Elt F) → (⟨S4x256x16, .f32⟩ : BufTy).Contents (Elt F) → (⟨S4x256x16, .f32⟩ : BufTy).Contents (Elt F)),
    binary main_v845 main_v854 main_v855 (addf : (⟨S4x256x16, .f32⟩ : BufTy).Contents (Elt F) → (⟨S4x256x16, .f32⟩ : BufTy).Contents (Elt F) → (⟨S4x256x16, .f32⟩ : BufTy).Contents (Elt F)),
    unary main_arg3 main_v856 ((extractStridedSlice S4x1x16 ![0, 42, 0] · slices_S4x512x16_S4x1x16_0_42_0) : (⟨S4x512x16, .f32⟩ : BufTy).Contents (Elt F) → (⟨S4x1x16, .f32⟩ : BufTy).Contents (Elt F)),
    reshape main_v856 main_v857 rfl shapeCasts_S4x1x16_S4x16,
    unary main_v857 main_v858 (broadcastInDim S4x1x16 ![0, 2] bcast_S4x16_S4x1x16_0_2 : (⟨S4x16, .f32⟩ : BufTy).Contents (Elt F) → (⟨S4x1x16, .f32⟩ : BufTy).Contents (Elt F)),
    unary main_v858 main_v859 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v855 main_v859 main_v860 (mulf : (⟨S4x256x16, .f32⟩ : BufTy).Contents (Elt F) → (⟨S4x256x16, .f32⟩ : BufTy).Contents (Elt F) → (⟨S4x256x16, .f32⟩ : BufTy).Contents (Elt F)),
    nullary main_cst_84 (constant S_ .f32 0x00000000#32),
    binary main_v860 main_cst_84 main_v861 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_85 (constantI S_ 32 42#32),
    unary main_c_85 main_v862 (broadcastInDim S1 ![] bcast_S_S1 : (⟨S_, .i32⟩ : BufTy).Contents (Elt F) → (⟨S1, .i32⟩ : BufTy).Contents (Elt F)),
    ternary main_v843 main_v862 main_v861 main_v863 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps42_ok : (stepOps42 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step42_val (V : Valuation τ sig (Elt Ideal)) :
    after (stepOps42 (F := Ideal)) V (no_index (Proc.devRef .tc main_v855)) = stepH 42 (by decide) (V (Proc.devRef .tc main_arg0)) (V (Proc.devRef .tc main_v3)) (V (Proc.devRef .tc main_arg2)) (V (Proc.devRef .tc main_v835))
    ∧ after (stepOps42 (F := Ideal)) V (no_index (Proc.devRef .tc main_v863)) = stepY 42 (by decide) (V (Proc.devRef .tc main_arg3)) (stepH 42 (by decide) (V (Proc.devRef .tc main_arg0)) (V (Proc.devRef .tc main_v3)) (V (Proc.devRef .tc main_arg2)) (V (Proc.devRef .tc main_v835))) (V (Proc.devRef .tc main_v843)) := by
  simp only [stepOps42]
  after_results_simp
  first | exact ⟨rfl, rfl⟩ | fail "value"
/-- Step 43 of the loop: operations 953 … 974 of the program. -/
abbrev stepOps43 : List (HloOp τ sig (Elt F)) :=
  [ unary main_v3 main_v864 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v855 main_v864 main_v865 (mulf : (⟨S4x256x16, .f32⟩ : BufTy).Contents (Elt F) → (⟨S4x256x16, .f32⟩ : BufTy).Contents (Elt F) → (⟨S4x256x16, .f32⟩ : BufTy).Contents (Elt F)),
    unary main_arg0 main_v866 ((extractStridedSlice S4x1x256 ![0, 43, 0] · slices_S4x512x256_S4x1x256_0_43_0) : (⟨S4x512x256, .f32⟩ : BufTy).Contents (Elt F) → (⟨S4x1x256, .f32⟩ : BufTy).Contents (Elt F)),
    reshape main_v866 main_v867 rfl shapeCasts_S4x1x256_S4x256,
    unary main_v867 main_v868 (broadcastInDim S4x256x1 ![0, 1] bcast_S4x256_S4x256x1_0_1 : (⟨S4x256, .f32⟩ : BufTy).Contents (Elt F) → (⟨S4x256x1, .f32⟩ : BufTy).Contents (Elt F)),
    unary main_arg2 main_v869 ((extractStridedSlice S4x1x16 ![0, 43, 0] · slices_S4x512x16_S4x1x16_0_43_0) : (⟨S4x512x16, .f32⟩ : BufTy).Contents (Elt F) → (⟨S4x1x16, .f32⟩ : BufTy).Contents (Elt F)),
    reshape main_v869 main_v870 rfl shapeCasts_S4x1x16_S4x16,
    unary main_v870 main_v871 (broadcastInDim S4x1x16 ![0, 2] bcast_S4x16_S4x1x16_0_2 : (⟨S4x16, .f32⟩ : BufTy).Contents (Elt F) → (⟨S4x1x16, .f32⟩ : BufTy).Contents (Elt F)),
    unary main_v868 main_v872 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v871 main_v873 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v872 main_v873 main_v874 (mulf : (⟨S4x256x16, .f32⟩ : BufTy).Contents (Elt F) → (⟨S4x256x16, .f32⟩ : BufTy).Contents (Elt F) → (⟨S4x256x16, .f32⟩ : BufTy).Contents (Elt F)),
    binary main_v865 main_v874 main_v875 (addf : (⟨S4x256x16, .f32⟩ : BufTy).Contents (Elt F) → (⟨S4x256x16, .f32⟩ : BufTy).Contents (Elt F) → (⟨S4x256x16, .f32⟩ : BufTy).Contents (Elt F)),
    unary main_arg3 main_v876 ((extractStridedSlice S4x1x16 ![0, 43, 0] · slices_S4x512x16_S4x1x16_0_43_0) : (⟨S4x512x16, .f32⟩ : BufTy).Contents (Elt F) → (⟨S4x1x16, .f32⟩ : BufTy).Contents (Elt F)),
    reshape main_v876 main_v877 rfl shapeCasts_S4x1x16_S4x16,
    unary main_v877 main_v878 (broadcastInDim S4x1x16 ![0, 2] bcast_S4x16_S4x1x16_0_2 : (⟨S4x16, .f32⟩ : BufTy).Contents (Elt F) → (⟨S4x1x16, .f32⟩ : BufTy).Contents (Elt F)),
    unary main_v878 main_v879 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v875 main_v879 main_v880 (mulf : (⟨S4x256x16, .f32⟩ : BufTy).Contents (Elt F) → (⟨S4x256x16, .f32⟩ : BufTy).Contents (Elt F) → (⟨S4x256x16, .f32⟩ : BufTy).Contents (Elt F)),
    nullary main_cst_86 (constant S_ .f32 0x00000000#32),
    binary main_v880 main_cst_86 main_v881 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_87 (constantI S_ 32 43#32),
    unary main_c_87 main_v882 (broadcastInDim S1 ![] bcast_S_S1 : (⟨S_, .i32⟩ : BufTy).Contents (Elt F) → (⟨S1, .i32⟩ : BufTy).Contents (Elt F)),
    ternary main_v863 main_v882 main_v881 main_v883 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps43_ok : (stepOps43 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step43_val (V : Valuation τ sig (Elt Ideal)) :
    after (stepOps43 (F := Ideal)) V (no_index (Proc.devRef .tc main_v875)) = stepH 43 (by decide) (V (Proc.devRef .tc main_arg0)) (V (Proc.devRef .tc main_v3)) (V (Proc.devRef .tc main_arg2)) (V (Proc.devRef .tc main_v855))
    ∧ after (stepOps43 (F := Ideal)) V (no_index (Proc.devRef .tc main_v883)) = stepY 43 (by decide) (V (Proc.devRef .tc main_arg3)) (stepH 43 (by decide) (V (Proc.devRef .tc main_arg0)) (V (Proc.devRef .tc main_v3)) (V (Proc.devRef .tc main_arg2)) (V (Proc.devRef .tc main_v855))) (V (Proc.devRef .tc main_v863)) := by
  simp only [stepOps43]
  after_results_simp
  first | exact ⟨rfl, rfl⟩ | fail "value"
/-- Step 44 of the loop: operations 975 … 996 of the program. -/
abbrev stepOps44 : List (HloOp τ sig (Elt F)) :=
  [ unary main_v3 main_v884 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v875 main_v884 main_v885 (mulf : (⟨S4x256x16, .f32⟩ : BufTy).Contents (Elt F) → (⟨S4x256x16, .f32⟩ : BufTy).Contents (Elt F) → (⟨S4x256x16, .f32⟩ : BufTy).Contents (Elt F)),
    unary main_arg0 main_v886 ((extractStridedSlice S4x1x256 ![0, 44, 0] · slices_S4x512x256_S4x1x256_0_44_0) : (⟨S4x512x256, .f32⟩ : BufTy).Contents (Elt F) → (⟨S4x1x256, .f32⟩ : BufTy).Contents (Elt F)),
    reshape main_v886 main_v887 rfl shapeCasts_S4x1x256_S4x256,
    unary main_v887 main_v888 (broadcastInDim S4x256x1 ![0, 1] bcast_S4x256_S4x256x1_0_1 : (⟨S4x256, .f32⟩ : BufTy).Contents (Elt F) → (⟨S4x256x1, .f32⟩ : BufTy).Contents (Elt F)),
    unary main_arg2 main_v889 ((extractStridedSlice S4x1x16 ![0, 44, 0] · slices_S4x512x16_S4x1x16_0_44_0) : (⟨S4x512x16, .f32⟩ : BufTy).Contents (Elt F) → (⟨S4x1x16, .f32⟩ : BufTy).Contents (Elt F)),
    reshape main_v889 main_v890 rfl shapeCasts_S4x1x16_S4x16,
    unary main_v890 main_v891 (broadcastInDim S4x1x16 ![0, 2] bcast_S4x16_S4x1x16_0_2 : (⟨S4x16, .f32⟩ : BufTy).Contents (Elt F) → (⟨S4x1x16, .f32⟩ : BufTy).Contents (Elt F)),
    unary main_v888 main_v892 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v891 main_v893 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v892 main_v893 main_v894 (mulf : (⟨S4x256x16, .f32⟩ : BufTy).Contents (Elt F) → (⟨S4x256x16, .f32⟩ : BufTy).Contents (Elt F) → (⟨S4x256x16, .f32⟩ : BufTy).Contents (Elt F)),
    binary main_v885 main_v894 main_v895 (addf : (⟨S4x256x16, .f32⟩ : BufTy).Contents (Elt F) → (⟨S4x256x16, .f32⟩ : BufTy).Contents (Elt F) → (⟨S4x256x16, .f32⟩ : BufTy).Contents (Elt F)),
    unary main_arg3 main_v896 ((extractStridedSlice S4x1x16 ![0, 44, 0] · slices_S4x512x16_S4x1x16_0_44_0) : (⟨S4x512x16, .f32⟩ : BufTy).Contents (Elt F) → (⟨S4x1x16, .f32⟩ : BufTy).Contents (Elt F)),
    reshape main_v896 main_v897 rfl shapeCasts_S4x1x16_S4x16,
    unary main_v897 main_v898 (broadcastInDim S4x1x16 ![0, 2] bcast_S4x16_S4x1x16_0_2 : (⟨S4x16, .f32⟩ : BufTy).Contents (Elt F) → (⟨S4x1x16, .f32⟩ : BufTy).Contents (Elt F)),
    unary main_v898 main_v899 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v895 main_v899 main_v900 (mulf : (⟨S4x256x16, .f32⟩ : BufTy).Contents (Elt F) → (⟨S4x256x16, .f32⟩ : BufTy).Contents (Elt F) → (⟨S4x256x16, .f32⟩ : BufTy).Contents (Elt F)),
    nullary main_cst_88 (constant S_ .f32 0x00000000#32),
    binary main_v900 main_cst_88 main_v901 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_89 (constantI S_ 32 44#32),
    unary main_c_89 main_v902 (broadcastInDim S1 ![] bcast_S_S1 : (⟨S_, .i32⟩ : BufTy).Contents (Elt F) → (⟨S1, .i32⟩ : BufTy).Contents (Elt F)),
    ternary main_v883 main_v902 main_v901 main_v903 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps44_ok : (stepOps44 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step44_val (V : Valuation τ sig (Elt Ideal)) :
    after (stepOps44 (F := Ideal)) V (no_index (Proc.devRef .tc main_v895)) = stepH 44 (by decide) (V (Proc.devRef .tc main_arg0)) (V (Proc.devRef .tc main_v3)) (V (Proc.devRef .tc main_arg2)) (V (Proc.devRef .tc main_v875))
    ∧ after (stepOps44 (F := Ideal)) V (no_index (Proc.devRef .tc main_v903)) = stepY 44 (by decide) (V (Proc.devRef .tc main_arg3)) (stepH 44 (by decide) (V (Proc.devRef .tc main_arg0)) (V (Proc.devRef .tc main_v3)) (V (Proc.devRef .tc main_arg2)) (V (Proc.devRef .tc main_v875))) (V (Proc.devRef .tc main_v883)) := by
  simp only [stepOps44]
  after_results_simp
  first | exact ⟨rfl, rfl⟩ | fail "value"
/-- Step 45 of the loop: operations 997 … 1018 of the program. -/
abbrev stepOps45 : List (HloOp τ sig (Elt F)) :=
  [ unary main_v3 main_v904 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v895 main_v904 main_v905 (mulf : (⟨S4x256x16, .f32⟩ : BufTy).Contents (Elt F) → (⟨S4x256x16, .f32⟩ : BufTy).Contents (Elt F) → (⟨S4x256x16, .f32⟩ : BufTy).Contents (Elt F)),
    unary main_arg0 main_v906 ((extractStridedSlice S4x1x256 ![0, 45, 0] · slices_S4x512x256_S4x1x256_0_45_0) : (⟨S4x512x256, .f32⟩ : BufTy).Contents (Elt F) → (⟨S4x1x256, .f32⟩ : BufTy).Contents (Elt F)),
    reshape main_v906 main_v907 rfl shapeCasts_S4x1x256_S4x256,
    unary main_v907 main_v908 (broadcastInDim S4x256x1 ![0, 1] bcast_S4x256_S4x256x1_0_1 : (⟨S4x256, .f32⟩ : BufTy).Contents (Elt F) → (⟨S4x256x1, .f32⟩ : BufTy).Contents (Elt F)),
    unary main_arg2 main_v909 ((extractStridedSlice S4x1x16 ![0, 45, 0] · slices_S4x512x16_S4x1x16_0_45_0) : (⟨S4x512x16, .f32⟩ : BufTy).Contents (Elt F) → (⟨S4x1x16, .f32⟩ : BufTy).Contents (Elt F)),
    reshape main_v909 main_v910 rfl shapeCasts_S4x1x16_S4x16,
    unary main_v910 main_v911 (broadcastInDim S4x1x16 ![0, 2] bcast_S4x16_S4x1x16_0_2 : (⟨S4x16, .f32⟩ : BufTy).Contents (Elt F) → (⟨S4x1x16, .f32⟩ : BufTy).Contents (Elt F)),
    unary main_v908 main_v912 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v911 main_v913 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v912 main_v913 main_v914 (mulf : (⟨S4x256x16, .f32⟩ : BufTy).Contents (Elt F) → (⟨S4x256x16, .f32⟩ : BufTy).Contents (Elt F) → (⟨S4x256x16, .f32⟩ : BufTy).Contents (Elt F)),
    binary main_v905 main_v914 main_v915 (addf : (⟨S4x256x16, .f32⟩ : BufTy).Contents (Elt F) → (⟨S4x256x16, .f32⟩ : BufTy).Contents (Elt F) → (⟨S4x256x16, .f32⟩ : BufTy).Contents (Elt F)),
    unary main_arg3 main_v916 ((extractStridedSlice S4x1x16 ![0, 45, 0] · slices_S4x512x16_S4x1x16_0_45_0) : (⟨S4x512x16, .f32⟩ : BufTy).Contents (Elt F) → (⟨S4x1x16, .f32⟩ : BufTy).Contents (Elt F)),
    reshape main_v916 main_v917 rfl shapeCasts_S4x1x16_S4x16,
    unary main_v917 main_v918 (broadcastInDim S4x1x16 ![0, 2] bcast_S4x16_S4x1x16_0_2 : (⟨S4x16, .f32⟩ : BufTy).Contents (Elt F) → (⟨S4x1x16, .f32⟩ : BufTy).Contents (Elt F)),
    unary main_v918 main_v919 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v915 main_v919 main_v920 (mulf : (⟨S4x256x16, .f32⟩ : BufTy).Contents (Elt F) → (⟨S4x256x16, .f32⟩ : BufTy).Contents (Elt F) → (⟨S4x256x16, .f32⟩ : BufTy).Contents (Elt F)),
    nullary main_cst_90 (constant S_ .f32 0x00000000#32),
    binary main_v920 main_cst_90 main_v921 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_91 (constantI S_ 32 45#32),
    unary main_c_91 main_v922 (broadcastInDim S1 ![] bcast_S_S1 : (⟨S_, .i32⟩ : BufTy).Contents (Elt F) → (⟨S1, .i32⟩ : BufTy).Contents (Elt F)),
    ternary main_v903 main_v922 main_v921 main_v923 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps45_ok : (stepOps45 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step45_val (V : Valuation τ sig (Elt Ideal)) :
    after (stepOps45 (F := Ideal)) V (no_index (Proc.devRef .tc main_v915)) = stepH 45 (by decide) (V (Proc.devRef .tc main_arg0)) (V (Proc.devRef .tc main_v3)) (V (Proc.devRef .tc main_arg2)) (V (Proc.devRef .tc main_v895))
    ∧ after (stepOps45 (F := Ideal)) V (no_index (Proc.devRef .tc main_v923)) = stepY 45 (by decide) (V (Proc.devRef .tc main_arg3)) (stepH 45 (by decide) (V (Proc.devRef .tc main_arg0)) (V (Proc.devRef .tc main_v3)) (V (Proc.devRef .tc main_arg2)) (V (Proc.devRef .tc main_v895))) (V (Proc.devRef .tc main_v903)) := by
  simp only [stepOps45]
  after_results_simp
  first | exact ⟨rfl, rfl⟩ | fail "value"
/-- Step 46 of the loop: operations 1019 … 1040 of the program. -/
abbrev stepOps46 : List (HloOp τ sig (Elt F)) :=
  [ unary main_v3 main_v924 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v915 main_v924 main_v925 (mulf : (⟨S4x256x16, .f32⟩ : BufTy).Contents (Elt F) → (⟨S4x256x16, .f32⟩ : BufTy).Contents (Elt F) → (⟨S4x256x16, .f32⟩ : BufTy).Contents (Elt F)),
    unary main_arg0 main_v926 ((extractStridedSlice S4x1x256 ![0, 46, 0] · slices_S4x512x256_S4x1x256_0_46_0) : (⟨S4x512x256, .f32⟩ : BufTy).Contents (Elt F) → (⟨S4x1x256, .f32⟩ : BufTy).Contents (Elt F)),
    reshape main_v926 main_v927 rfl shapeCasts_S4x1x256_S4x256,
    unary main_v927 main_v928 (broadcastInDim S4x256x1 ![0, 1] bcast_S4x256_S4x256x1_0_1 : (⟨S4x256, .f32⟩ : BufTy).Contents (Elt F) → (⟨S4x256x1, .f32⟩ : BufTy).Contents (Elt F)),
    unary main_arg2 main_v929 ((extractStridedSlice S4x1x16 ![0, 46, 0] · slices_S4x512x16_S4x1x16_0_46_0) : (⟨S4x512x16, .f32⟩ : BufTy).Contents (Elt F) → (⟨S4x1x16, .f32⟩ : BufTy).Contents (Elt F)),
    reshape main_v929 main_v930 rfl shapeCasts_S4x1x16_S4x16,
    unary main_v930 main_v931 (broadcastInDim S4x1x16 ![0, 2] bcast_S4x16_S4x1x16_0_2 : (⟨S4x16, .f32⟩ : BufTy).Contents (Elt F) → (⟨S4x1x16, .f32⟩ : BufTy).Contents (Elt F)),
    unary main_v928 main_v932 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v931 main_v933 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v932 main_v933 main_v934 (mulf : (⟨S4x256x16, .f32⟩ : BufTy).Contents (Elt F) → (⟨S4x256x16, .f32⟩ : BufTy).Contents (Elt F) → (⟨S4x256x16, .f32⟩ : BufTy).Contents (Elt F)),
    binary main_v925 main_v934 main_v935 (addf : (⟨S4x256x16, .f32⟩ : BufTy).Contents (Elt F) → (⟨S4x256x16, .f32⟩ : BufTy).Contents (Elt F) → (⟨S4x256x16, .f32⟩ : BufTy).Contents (Elt F)),
    unary main_arg3 main_v936 ((extractStridedSlice S4x1x16 ![0, 46, 0] · slices_S4x512x16_S4x1x16_0_46_0) : (⟨S4x512x16, .f32⟩ : BufTy).Contents (Elt F) → (⟨S4x1x16, .f32⟩ : BufTy).Contents (Elt F)),
    reshape main_v936 main_v937 rfl shapeCasts_S4x1x16_S4x16,
    unary main_v937 main_v938 (broadcastInDim S4x1x16 ![0, 2] bcast_S4x16_S4x1x16_0_2 : (⟨S4x16, .f32⟩ : BufTy).Contents (Elt F) → (⟨S4x1x16, .f32⟩ : BufTy).Contents (Elt F)),
    unary main_v938 main_v939 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v935 main_v939 main_v940 (mulf : (⟨S4x256x16, .f32⟩ : BufTy).Contents (Elt F) → (⟨S4x256x16, .f32⟩ : BufTy).Contents (Elt F) → (⟨S4x256x16, .f32⟩ : BufTy).Contents (Elt F)),
    nullary main_cst_92 (constant S_ .f32 0x00000000#32),
    binary main_v940 main_cst_92 main_v941 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_93 (constantI S_ 32 46#32),
    unary main_c_93 main_v942 (broadcastInDim S1 ![] bcast_S_S1 : (⟨S_, .i32⟩ : BufTy).Contents (Elt F) → (⟨S1, .i32⟩ : BufTy).Contents (Elt F)),
    ternary main_v923 main_v942 main_v941 main_v943 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps46_ok : (stepOps46 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step46_val (V : Valuation τ sig (Elt Ideal)) :
    after (stepOps46 (F := Ideal)) V (no_index (Proc.devRef .tc main_v935)) = stepH 46 (by decide) (V (Proc.devRef .tc main_arg0)) (V (Proc.devRef .tc main_v3)) (V (Proc.devRef .tc main_arg2)) (V (Proc.devRef .tc main_v915))
    ∧ after (stepOps46 (F := Ideal)) V (no_index (Proc.devRef .tc main_v943)) = stepY 46 (by decide) (V (Proc.devRef .tc main_arg3)) (stepH 46 (by decide) (V (Proc.devRef .tc main_arg0)) (V (Proc.devRef .tc main_v3)) (V (Proc.devRef .tc main_arg2)) (V (Proc.devRef .tc main_v915))) (V (Proc.devRef .tc main_v923)) := by
  simp only [stepOps46]
  after_results_simp
  first | exact ⟨rfl, rfl⟩ | fail "value"
/-- Step 47 of the loop: operations 1041 … 1062 of the program. -/
abbrev stepOps47 : List (HloOp τ sig (Elt F)) :=
  [ unary main_v3 main_v944 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v935 main_v944 main_v945 (mulf : (⟨S4x256x16, .f32⟩ : BufTy).Contents (Elt F) → (⟨S4x256x16, .f32⟩ : BufTy).Contents (Elt F) → (⟨S4x256x16, .f32⟩ : BufTy).Contents (Elt F)),
    unary main_arg0 main_v946 ((extractStridedSlice S4x1x256 ![0, 47, 0] · slices_S4x512x256_S4x1x256_0_47_0) : (⟨S4x512x256, .f32⟩ : BufTy).Contents (Elt F) → (⟨S4x1x256, .f32⟩ : BufTy).Contents (Elt F)),
    reshape main_v946 main_v947 rfl shapeCasts_S4x1x256_S4x256,
    unary main_v947 main_v948 (broadcastInDim S4x256x1 ![0, 1] bcast_S4x256_S4x256x1_0_1 : (⟨S4x256, .f32⟩ : BufTy).Contents (Elt F) → (⟨S4x256x1, .f32⟩ : BufTy).Contents (Elt F)),
    unary main_arg2 main_v949 ((extractStridedSlice S4x1x16 ![0, 47, 0] · slices_S4x512x16_S4x1x16_0_47_0) : (⟨S4x512x16, .f32⟩ : BufTy).Contents (Elt F) → (⟨S4x1x16, .f32⟩ : BufTy).Contents (Elt F)),
    reshape main_v949 main_v950 rfl shapeCasts_S4x1x16_S4x16,
    unary main_v950 main_v951 (broadcastInDim S4x1x16 ![0, 2] bcast_S4x16_S4x1x16_0_2 : (⟨S4x16, .f32⟩ : BufTy).Contents (Elt F) → (⟨S4x1x16, .f32⟩ : BufTy).Contents (Elt F)),
    unary main_v948 main_v952 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v951 main_v953 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v952 main_v953 main_v954 (mulf : (⟨S4x256x16, .f32⟩ : BufTy).Contents (Elt F) → (⟨S4x256x16, .f32⟩ : BufTy).Contents (Elt F) → (⟨S4x256x16, .f32⟩ : BufTy).Contents (Elt F)),
    binary main_v945 main_v954 main_v955 (addf : (⟨S4x256x16, .f32⟩ : BufTy).Contents (Elt F) → (⟨S4x256x16, .f32⟩ : BufTy).Contents (Elt F) → (⟨S4x256x16, .f32⟩ : BufTy).Contents (Elt F)),
    unary main_arg3 main_v956 ((extractStridedSlice S4x1x16 ![0, 47, 0] · slices_S4x512x16_S4x1x16_0_47_0) : (⟨S4x512x16, .f32⟩ : BufTy).Contents (Elt F) → (⟨S4x1x16, .f32⟩ : BufTy).Contents (Elt F)),
    reshape main_v956 main_v957 rfl shapeCasts_S4x1x16_S4x16,
    unary main_v957 main_v958 (broadcastInDim S4x1x16 ![0, 2] bcast_S4x16_S4x1x16_0_2 : (⟨S4x16, .f32⟩ : BufTy).Contents (Elt F) → (⟨S4x1x16, .f32⟩ : BufTy).Contents (Elt F)),
    unary main_v958 main_v959 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v955 main_v959 main_v960 (mulf : (⟨S4x256x16, .f32⟩ : BufTy).Contents (Elt F) → (⟨S4x256x16, .f32⟩ : BufTy).Contents (Elt F) → (⟨S4x256x16, .f32⟩ : BufTy).Contents (Elt F)),
    nullary main_cst_94 (constant S_ .f32 0x00000000#32),
    binary main_v960 main_cst_94 main_v961 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_95 (constantI S_ 32 47#32),
    unary main_c_95 main_v962 (broadcastInDim S1 ![] bcast_S_S1 : (⟨S_, .i32⟩ : BufTy).Contents (Elt F) → (⟨S1, .i32⟩ : BufTy).Contents (Elt F)),
    ternary main_v943 main_v962 main_v961 main_v963 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps47_ok : (stepOps47 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step47_val (V : Valuation τ sig (Elt Ideal)) :
    after (stepOps47 (F := Ideal)) V (no_index (Proc.devRef .tc main_v955)) = stepH 47 (by decide) (V (Proc.devRef .tc main_arg0)) (V (Proc.devRef .tc main_v3)) (V (Proc.devRef .tc main_arg2)) (V (Proc.devRef .tc main_v935))
    ∧ after (stepOps47 (F := Ideal)) V (no_index (Proc.devRef .tc main_v963)) = stepY 47 (by decide) (V (Proc.devRef .tc main_arg3)) (stepH 47 (by decide) (V (Proc.devRef .tc main_arg0)) (V (Proc.devRef .tc main_v3)) (V (Proc.devRef .tc main_arg2)) (V (Proc.devRef .tc main_v935))) (V (Proc.devRef .tc main_v943)) := by
  simp only [stepOps47]
  after_results_simp
  first | exact ⟨rfl, rfl⟩ | fail "value"

end Cert.ReferenceIdeal.RefRun

end
-- ==== Proof.RefTableStep03.lean ====
/-
  Steps 48 … 63 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 48 of the loop: operations 1063 … 1084 of the program. -/
abbrev stepOps48 : List (HloOp τ sig (Elt F)) :=
  [ unary main_v3 main_v964 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v955 main_v964 main_v965 (mulf : (⟨S4x256x16, .f32⟩ : BufTy).Contents (Elt F) → (⟨S4x256x16, .f32⟩ : BufTy).Contents (Elt F) → (⟨S4x256x16, .f32⟩ : BufTy).Contents (Elt F)),
    unary main_arg0 main_v966 ((extractStridedSlice S4x1x256 ![0, 48, 0] · slices_S4x512x256_S4x1x256_0_48_0) : (⟨S4x512x256, .f32⟩ : BufTy).Contents (Elt F) → (⟨S4x1x256, .f32⟩ : BufTy).Contents (Elt F)),
    reshape main_v966 main_v967 rfl shapeCasts_S4x1x256_S4x256,
    unary main_v967 main_v968 (broadcastInDim S4x256x1 ![0, 1] bcast_S4x256_S4x256x1_0_1 : (⟨S4x256, .f32⟩ : BufTy).Contents (Elt F) → (⟨S4x256x1, .f32⟩ : BufTy).Contents (Elt F)),
    unary main_arg2 main_v969 ((extractStridedSlice S4x1x16 ![0, 48, 0] · slices_S4x512x16_S4x1x16_0_48_0) : (⟨S4x512x16, .f32⟩ : BufTy).Contents (Elt F) → (⟨S4x1x16, .f32⟩ : BufTy).Contents (Elt F)),
    reshape main_v969 main_v970 rfl shapeCasts_S4x1x16_S4x16,
    unary main_v970 main_v971 (broadcastInDim S4x1x16 ![0, 2] bcast_S4x16_S4x1x16_0_2 : (⟨S4x16, .f32⟩ : BufTy).Contents (Elt F) → (⟨S4x1x16, .f32⟩ : BufTy).Contents (Elt F)),
    unary main_v968 main_v972 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v971 main_v973 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v972 main_v973 main_v974 (mulf : (⟨S4x256x16, .f32⟩ : BufTy).Contents (Elt F) → (⟨S4x256x16, .f32⟩ : BufTy).Contents (Elt F) → (⟨S4x256x16, .f32⟩ : BufTy).Contents (Elt F)),
    binary main_v965 main_v974 main_v975 (addf : (⟨S4x256x16, .f32⟩ : BufTy).Contents (Elt F) → (⟨S4x256x16, .f32⟩ : BufTy).Contents (Elt F) → (⟨S4x256x16, .f32⟩ : BufTy).Contents (Elt F)),
    unary main_arg3 main_v976 ((extractStridedSlice S4x1x16 ![0, 48, 0] · slices_S4x512x16_S4x1x16_0_48_0) : (⟨S4x512x16, .f32⟩ : BufTy).Contents (Elt F) → (⟨S4x1x16, .f32⟩ : BufTy).Contents (Elt F)),
    reshape main_v976 main_v977 rfl shapeCasts_S4x1x16_S4x16,
    unary main_v977 main_v978 (broadcastInDim S4x1x16 ![0, 2] bcast_S4x16_S4x1x16_0_2 : (⟨S4x16, .f32⟩ : BufTy).Contents (Elt F) → (⟨S4x1x16, .f32⟩ : BufTy).Contents (Elt F)),
    unary main_v978 main_v979 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v975 main_v979 main_v980 (mulf : (⟨S4x256x16, .f32⟩ : BufTy).Contents (Elt F) → (⟨S4x256x16, .f32⟩ : BufTy).Contents (Elt F) → (⟨S4x256x16, .f32⟩ : BufTy).Contents (Elt F)),
    nullary main_cst_96 (constant S_ .f32 0x00000000#32),
    binary main_v980 main_cst_96 main_v981 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_97 (constantI S_ 32 48#32),
    unary main_c_97 main_v982 (broadcastInDim S1 ![] bcast_S_S1 : (⟨S_, .i32⟩ : BufTy).Contents (Elt F) → (⟨S1, .i32⟩ : BufTy).Contents (Elt F)),
    ternary main_v963 main_v982 main_v981 main_v983 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps48_ok : (stepOps48 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step48_val (V : Valuation τ sig (Elt Ideal)) :
    after (stepOps48 (F := Ideal)) V (no_index (Proc.devRef .tc main_v975)) = stepH 48 (by decide) (V (Proc.devRef .tc main_arg0)) (V (Proc.devRef .tc main_v3)) (V (Proc.devRef .tc main_arg2)) (V (Proc.devRef .tc main_v955))
    ∧ after (stepOps48 (F := Ideal)) V (no_index (Proc.devRef .tc main_v983)) = stepY 48 (by decide) (V (Proc.devRef .tc main_arg3)) (stepH 48 (by decide) (V (Proc.devRef .tc main_arg0)) (V (Proc.devRef .tc main_v3)) (V (Proc.devRef .tc main_arg2)) (V (Proc.devRef .tc main_v955))) (V (Proc.devRef .tc main_v963)) := by
  simp only [stepOps48]
  after_results_simp
  first | exact ⟨rfl, rfl⟩ | fail "value"
/-- Step 49 of the loop: operations 1085 … 1106 of the program. -/
abbrev stepOps49 : List (HloOp τ sig (Elt F)) :=
  [ unary main_v3 main_v984 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v975 main_v984 main_v985 (mulf : (⟨S4x256x16, .f32⟩ : BufTy).Contents (Elt F) → (⟨S4x256x16, .f32⟩ : BufTy).Contents (Elt F) → (⟨S4x256x16, .f32⟩ : BufTy).Contents (Elt F)),
    unary main_arg0 main_v986 ((extractStridedSlice S4x1x256 ![0, 49, 0] · slices_S4x512x256_S4x1x256_0_49_0) : (⟨S4x512x256, .f32⟩ : BufTy).Contents (Elt F) → (⟨S4x1x256, .f32⟩ : BufTy).Contents (Elt F)),
    reshape main_v986 main_v987 rfl shapeCasts_S4x1x256_S4x256,
    unary main_v987 main_v988 (broadcastInDim S4x256x1 ![0, 1] bcast_S4x256_S4x256x1_0_1 : (⟨S4x256, .f32⟩ : BufTy).Contents (Elt F) → (⟨S4x256x1, .f32⟩ : BufTy).Contents (Elt F)),
    unary main_arg2 main_v989 ((extractStridedSlice S4x1x16 ![0, 49, 0] · slices_S4x512x16_S4x1x16_0_49_0) : (⟨S4x512x16, .f32⟩ : BufTy).Contents (Elt F) → (⟨S4x1x16, .f32⟩ : BufTy).Contents (Elt F)),
    reshape main_v989 main_v990 rfl shapeCasts_S4x1x16_S4x16,
    unary main_v990 main_v991 (broadcastInDim S4x1x16 ![0, 2] bcast_S4x16_S4x1x16_0_2 : (⟨S4x16, .f32⟩ : BufTy).Contents (Elt F) → (⟨S4x1x16, .f32⟩ : BufTy).Contents (Elt F)),
    unary main_v988 main_v992 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v991 main_v993 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v992 main_v993 main_v994 (mulf : (⟨S4x256x16, .f32⟩ : BufTy).Contents (Elt F) → (⟨S4x256x16, .f32⟩ : BufTy).Contents (Elt F) → (⟨S4x256x16, .f32⟩ : BufTy).Contents (Elt F)),
    binary main_v985 main_v994 main_v995 (addf : (⟨S4x256x16, .f32⟩ : BufTy).Contents (Elt F) → (⟨S4x256x16, .f32⟩ : BufTy).Contents (Elt F) → (⟨S4x256x16, .f32⟩ : BufTy).Contents (Elt F)),
    unary main_arg3 main_v996 ((extractStridedSlice S4x1x16 ![0, 49, 0] · slices_S4x512x16_S4x1x16_0_49_0) : (⟨S4x512x16, .f32⟩ : BufTy).Contents (Elt F) → (⟨S4x1x16, .f32⟩ : BufTy).Contents (Elt F)),
    reshape main_v996 main_v997 rfl shapeCasts_S4x1x16_S4x16,
    unary main_v997 main_v998 (broadcastInDim S4x1x16 ![0, 2] bcast_S4x16_S4x1x16_0_2 : (⟨S4x16, .f32⟩ : BufTy).Contents (Elt F) → (⟨S4x1x16, .f32⟩ : BufTy).Contents (Elt F)),
    unary main_v998 main_v999 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v995 main_v999 main_v1000 (mulf : (⟨S4x256x16, .f32⟩ : BufTy).Contents (Elt F) → (⟨S4x256x16, .f32⟩ : BufTy).Contents (Elt F) → (⟨S4x256x16, .f32⟩ : BufTy).Contents (Elt F)),
    nullary main_cst_98 (constant S_ .f32 0x00000000#32),
    binary main_v1000 main_cst_98 main_v1001 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_99 (constantI S_ 32 49#32),
    unary main_c_99 main_v1002 (broadcastInDim S1 ![] bcast_S_S1 : (⟨S_, .i32⟩ : BufTy).Contents (Elt F) → (⟨S1, .i32⟩ : BufTy).Contents (Elt F)),
    ternary main_v983 main_v1002 main_v1001 main_v1003 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps49_ok : (stepOps49 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step49_val (V : Valuation τ sig (Elt Ideal)) :
    after (stepOps49 (F := Ideal)) V (no_index (Proc.devRef .tc main_v995)) = stepH 49 (by decide) (V (Proc.devRef .tc main_arg0)) (V (Proc.devRef .tc main_v3)) (V (Proc.devRef .tc main_arg2)) (V (Proc.devRef .tc main_v975))
    ∧ after (stepOps49 (F := Ideal)) V (no_index (Proc.devRef .tc main_v1003)) = stepY 49 (by decide) (V (Proc.devRef .tc main_arg3)) (stepH 49 (by decide) (V (Proc.devRef .tc main_arg0)) (V (Proc.devRef .tc main_v3)) (V (Proc.devRef .tc main_arg2)) (V (Proc.devRef .tc main_v975))) (V (Proc.devRef .tc main_v983)) := by
  simp only [stepOps49]
  after_results_simp
  first | exact ⟨rfl, rfl⟩ | fail "value"
/-- Step 50 of the loop: operations 1107 … 1128 of the program. -/
abbrev stepOps50 : List (HloOp τ sig (Elt F)) :=
  [ unary main_v3 main_v1004 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v995 main_v1004 main_v1005 (mulf : (⟨S4x256x16, .f32⟩ : BufTy).Contents (Elt F) → (⟨S4x256x16, .f32⟩ : BufTy).Contents (Elt F) → (⟨S4x256x16, .f32⟩ : BufTy).Contents (Elt F)),
    unary main_arg0 main_v1006 ((extractStridedSlice S4x1x256 ![0, 50, 0] · slices_S4x512x256_S4x1x256_0_50_0) : (⟨S4x512x256, .f32⟩ : BufTy).Contents (Elt F) → (⟨S4x1x256, .f32⟩ : BufTy).Contents (Elt F)),
    reshape main_v1006 main_v1007 rfl shapeCasts_S4x1x256_S4x256,
    unary main_v1007 main_v1008 (broadcastInDim S4x256x1 ![0, 1] bcast_S4x256_S4x256x1_0_1 : (⟨S4x256, .f32⟩ : BufTy).Contents (Elt F) → (⟨S4x256x1, .f32⟩ : BufTy).Contents (Elt F)),
    unary main_arg2 main_v1009 ((extractStridedSlice S4x1x16 ![0, 50, 0] · slices_S4x512x16_S4x1x16_0_50_0) : (⟨S4x512x16, .f32⟩ : BufTy).Contents (Elt F) → (⟨S4x1x16, .f32⟩ : BufTy).Contents (Elt F)),
    reshape main_v1009 main_v1010 rfl shapeCasts_S4x1x16_S4x16,
    unary main_v1010 main_v1011 (broadcastInDim S4x1x16 ![0, 2] bcast_S4x16_S4x1x16_0_2 : (⟨S4x16, .f32⟩ : BufTy).Contents (Elt F) → (⟨S4x1x16, .f32⟩ : BufTy).Contents (Elt F)),
    unary main_v1008 main_v1012 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1011 main_v1013 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1012 main_v1013 main_v1014 (mulf : (⟨S4x256x16, .f32⟩ : BufTy).Contents (Elt F) → (⟨S4x256x16, .f32⟩ : BufTy).Contents (Elt F) → (⟨S4x256x16, .f32⟩ : BufTy).Contents (Elt F)),
    binary main_v1005 main_v1014 main_v1015 (addf : (⟨S4x256x16, .f32⟩ : BufTy).Contents (Elt F) → (⟨S4x256x16, .f32⟩ : BufTy).Contents (Elt F) → (⟨S4x256x16, .f32⟩ : BufTy).Contents (Elt F)),
    unary main_arg3 main_v1016 ((extractStridedSlice S4x1x16 ![0, 50, 0] · slices_S4x512x16_S4x1x16_0_50_0) : (⟨S4x512x16, .f32⟩ : BufTy).Contents (Elt F) → (⟨S4x1x16, .f32⟩ : BufTy).Contents (Elt F)),
    reshape main_v1016 main_v1017 rfl shapeCasts_S4x1x16_S4x16,
    unary main_v1017 main_v1018 (broadcastInDim S4x1x16 ![0, 2] bcast_S4x16_S4x1x16_0_2 : (⟨S4x16, .f32⟩ : BufTy).Contents (Elt F) → (⟨S4x1x16, .f32⟩ : BufTy).Contents (Elt F)),
    unary main_v1018 main_v1019 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1015 main_v1019 main_v1020 (mulf : (⟨S4x256x16, .f32⟩ : BufTy).Contents (Elt F) → (⟨S4x256x16, .f32⟩ : BufTy).Contents (Elt F) → (⟨S4x256x16, .f32⟩ : BufTy).Contents (Elt F)),
    nullary main_cst_100 (constant S_ .f32 0x00000000#32),
    binary main_v1020 main_cst_100 main_v1021 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_101 (constantI S_ 32 50#32),
    unary main_c_101 main_v1022 (broadcastInDim S1 ![] bcast_S_S1 : (⟨S_, .i32⟩ : BufTy).Contents (Elt F) → (⟨S1, .i32⟩ : BufTy).Contents (Elt F)),
    ternary main_v1003 main_v1022 main_v1021 main_v1023 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps50_ok : (stepOps50 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step50_val (V : Valuation τ sig (Elt Ideal)) :
    after (stepOps50 (F := Ideal)) V (no_index (Proc.devRef .tc main_v1015)) = stepH 50 (by decide) (V (Proc.devRef .tc main_arg0)) (V (Proc.devRef .tc main_v3)) (V (Proc.devRef .tc main_arg2)) (V (Proc.devRef .tc main_v995))
    ∧ after (stepOps50 (F := Ideal)) V (no_index (Proc.devRef .tc main_v1023)) = stepY 50 (by decide) (V (Proc.devRef .tc main_arg3)) (stepH 50 (by decide) (V (Proc.devRef .tc main_arg0)) (V (Proc.devRef .tc main_v3)) (V (Proc.devRef .tc main_arg2)) (V (Proc.devRef .tc main_v995))) (V (Proc.devRef .tc main_v1003)) := by
  simp only [stepOps50]
  after_results_simp
  first | exact ⟨rfl, rfl⟩ | fail "value"
/-- Step 51 of the loop: operations 1129 … 1150 of the program. -/
abbrev stepOps51 : List (HloOp τ sig (Elt F)) :=
  [ unary main_v3 main_v1024 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1015 main_v1024 main_v1025 (mulf : (⟨S4x256x16, .f32⟩ : BufTy).Contents (Elt F) → (⟨S4x256x16, .f32⟩ : BufTy).Contents (Elt F) → (⟨S4x256x16, .f32⟩ : BufTy).Contents (Elt F)),
    unary main_arg0 main_v1026 ((extractStridedSlice S4x1x256 ![0, 51, 0] · slices_S4x512x256_S4x1x256_0_51_0) : (⟨S4x512x256, .f32⟩ : BufTy).Contents (Elt F) → (⟨S4x1x256, .f32⟩ : BufTy).Contents (Elt F)),
    reshape main_v1026 main_v1027 rfl shapeCasts_S4x1x256_S4x256,
    unary main_v1027 main_v1028 (broadcastInDim S4x256x1 ![0, 1] bcast_S4x256_S4x256x1_0_1 : (⟨S4x256, .f32⟩ : BufTy).Contents (Elt F) → (⟨S4x256x1, .f32⟩ : BufTy).Contents (Elt F)),
    unary main_arg2 main_v1029 ((extractStridedSlice S4x1x16 ![0, 51, 0] · slices_S4x512x16_S4x1x16_0_51_0) : (⟨S4x512x16, .f32⟩ : BufTy).Contents (Elt F) → (⟨S4x1x16, .f32⟩ : BufTy).Contents (Elt F)),
    reshape main_v1029 main_v1030 rfl shapeCasts_S4x1x16_S4x16,
    unary main_v1030 main_v1031 (broadcastInDim S4x1x16 ![0, 2] bcast_S4x16_S4x1x16_0_2 : (⟨S4x16, .f32⟩ : BufTy).Contents (Elt F) → (⟨S4x1x16, .f32⟩ : BufTy).Contents (Elt F)),
    unary main_v1028 main_v1032 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1031 main_v1033 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1032 main_v1033 main_v1034 (mulf : (⟨S4x256x16, .f32⟩ : BufTy).Contents (Elt F) → (⟨S4x256x16, .f32⟩ : BufTy).Contents (Elt F) → (⟨S4x256x16, .f32⟩ : BufTy).Contents (Elt F)),
    binary main_v1025 main_v1034 main_v1035 (addf : (⟨S4x256x16, .f32⟩ : BufTy).Contents (Elt F) → (⟨S4x256x16, .f32⟩ : BufTy).Contents (Elt F) → (⟨S4x256x16, .f32⟩ : BufTy).Contents (Elt F)),
    unary main_arg3 main_v1036 ((extractStridedSlice S4x1x16 ![0, 51, 0] · slices_S4x512x16_S4x1x16_0_51_0) : (⟨S4x512x16, .f32⟩ : BufTy).Contents (Elt F) → (⟨S4x1x16, .f32⟩ : BufTy).Contents (Elt F)),
    reshape main_v1036 main_v1037 rfl shapeCasts_S4x1x16_S4x16,
    unary main_v1037 main_v1038 (broadcastInDim S4x1x16 ![0, 2] bcast_S4x16_S4x1x16_0_2 : (⟨S4x16, .f32⟩ : BufTy).Contents (Elt F) → (⟨S4x1x16, .f32⟩ : BufTy).Contents (Elt F)),
    unary main_v1038 main_v1039 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1035 main_v1039 main_v1040 (mulf : (⟨S4x256x16, .f32⟩ : BufTy).Contents (Elt F) → (⟨S4x256x16, .f32⟩ : BufTy).Contents (Elt F) → (⟨S4x256x16, .f32⟩ : BufTy).Contents (Elt F)),
    nullary main_cst_102 (constant S_ .f32 0x00000000#32),
    binary main_v1040 main_cst_102 main_v1041 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_103 (constantI S_ 32 51#32),
    unary main_c_103 main_v1042 (broadcastInDim S1 ![] bcast_S_S1 : (⟨S_, .i32⟩ : BufTy).Contents (Elt F) → (⟨S1, .i32⟩ : BufTy).Contents (Elt F)),
    ternary main_v1023 main_v1042 main_v1041 main_v1043 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps51_ok : (stepOps51 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step51_val (V : Valuation τ sig (Elt Ideal)) :
    after (stepOps51 (F := Ideal)) V (no_index (Proc.devRef .tc main_v1035)) = stepH 51 (by decide) (V (Proc.devRef .tc main_arg0)) (V (Proc.devRef .tc main_v3)) (V (Proc.devRef .tc main_arg2)) (V (Proc.devRef .tc main_v1015))
    ∧ after (stepOps51 (F := Ideal)) V (no_index (Proc.devRef .tc main_v1043)) = stepY 51 (by decide) (V (Proc.devRef .tc main_arg3)) (stepH 51 (by decide) (V (Proc.devRef .tc main_arg0)) (V (Proc.devRef .tc main_v3)) (V (Proc.devRef .tc main_arg2)) (V (Proc.devRef .tc main_v1015))) (V (Proc.devRef .tc main_v1023)) := by
  simp only [stepOps51]
  after_results_simp
  first | exact ⟨rfl, rfl⟩ | fail "value"
/-- Step 52 of the loop: operations 1151 … 1172 of the program. -/
abbrev stepOps52 : List (HloOp τ sig (Elt F)) :=
  [ unary main_v3 main_v1044 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1035 main_v1044 main_v1045 (mulf : (⟨S4x256x16, .f32⟩ : BufTy).Contents (Elt F) → (⟨S4x256x16, .f32⟩ : BufTy).Contents (Elt F) → (⟨S4x256x16, .f32⟩ : BufTy).Contents (Elt F)),
    unary main_arg0 main_v1046 ((extractStridedSlice S4x1x256 ![0, 52, 0] · slices_S4x512x256_S4x1x256_0_52_0) : (⟨S4x512x256, .f32⟩ : BufTy).Contents (Elt F) → (⟨S4x1x256, .f32⟩ : BufTy).Contents (Elt F)),
    reshape main_v1046 main_v1047 rfl shapeCasts_S4x1x256_S4x256,
    unary main_v1047 main_v1048 (broadcastInDim S4x256x1 ![0, 1] bcast_S4x256_S4x256x1_0_1 : (⟨S4x256, .f32⟩ : BufTy).Contents (Elt F) → (⟨S4x256x1, .f32⟩ : BufTy).Contents (Elt F)),
    unary main_arg2 main_v1049 ((extractStridedSlice S4x1x16 ![0, 52, 0] · slices_S4x512x16_S4x1x16_0_52_0) : (⟨S4x512x16, .f32⟩ : BufTy).Contents (Elt F) → (⟨S4x1x16, .f32⟩ : BufTy).Contents (Elt F)),
    reshape main_v1049 main_v1050 rfl shapeCasts_S4x1x16_S4x16,
    unary main_v1050 main_v1051 (broadcastInDim S4x1x16 ![0, 2] bcast_S4x16_S4x1x16_0_2 : (⟨S4x16, .f32⟩ : BufTy).Contents (Elt F) → (⟨S4x1x16, .f32⟩ : BufTy).Contents (Elt F)),
    unary main_v1048 main_v1052 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1051 main_v1053 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1052 main_v1053 main_v1054 (mulf : (⟨S4x256x16, .f32⟩ : BufTy).Contents (Elt F) → (⟨S4x256x16, .f32⟩ : BufTy).Contents (Elt F) → (⟨S4x256x16, .f32⟩ : BufTy).Contents (Elt F)),
    binary main_v1045 main_v1054 main_v1055 (addf : (⟨S4x256x16, .f32⟩ : BufTy).Contents (Elt F) → (⟨S4x256x16, .f32⟩ : BufTy).Contents (Elt F) → (⟨S4x256x16, .f32⟩ : BufTy).Contents (Elt F)),
    unary main_arg3 main_v1056 ((extractStridedSlice S4x1x16 ![0, 52, 0] · slices_S4x512x16_S4x1x16_0_52_0) : (⟨S4x512x16, .f32⟩ : BufTy).Contents (Elt F) → (⟨S4x1x16, .f32⟩ : BufTy).Contents (Elt F)),
    reshape main_v1056 main_v1057 rfl shapeCasts_S4x1x16_S4x16,
    unary main_v1057 main_v1058 (broadcastInDim S4x1x16 ![0, 2] bcast_S4x16_S4x1x16_0_2 : (⟨S4x16, .f32⟩ : BufTy).Contents (Elt F) → (⟨S4x1x16, .f32⟩ : BufTy).Contents (Elt F)),
    unary main_v1058 main_v1059 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1055 main_v1059 main_v1060 (mulf : (⟨S4x256x16, .f32⟩ : BufTy).Contents (Elt F) → (⟨S4x256x16, .f32⟩ : BufTy).Contents (Elt F) → (⟨S4x256x16, .f32⟩ : BufTy).Contents (Elt F)),
    nullary main_cst_104 (constant S_ .f32 0x00000000#32),
    binary main_v1060 main_cst_104 main_v1061 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_105 (constantI S_ 32 52#32),
    unary main_c_105 main_v1062 (broadcastInDim S1 ![] bcast_S_S1 : (⟨S_, .i32⟩ : BufTy).Contents (Elt F) → (⟨S1, .i32⟩ : BufTy).Contents (Elt F)),
    ternary main_v1043 main_v1062 main_v1061 main_v1063 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps52_ok : (stepOps52 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step52_val (V : Valuation τ sig (Elt Ideal)) :
    after (stepOps52 (F := Ideal)) V (no_index (Proc.devRef .tc main_v1055)) = stepH 52 (by decide) (V (Proc.devRef .tc main_arg0)) (V (Proc.devRef .tc main_v3)) (V (Proc.devRef .tc main_arg2)) (V (Proc.devRef .tc main_v1035))
    ∧ after (stepOps52 (F := Ideal)) V (no_index (Proc.devRef .tc main_v1063)) = stepY 52 (by decide) (V (Proc.devRef .tc main_arg3)) (stepH 52 (by decide) (V (Proc.devRef .tc main_arg0)) (V (Proc.devRef .tc main_v3)) (V (Proc.devRef .tc main_arg2)) (V (Proc.devRef .tc main_v1035))) (V (Proc.devRef .tc main_v1043)) := by
  simp only [stepOps52]
  after_results_simp
  first | exact ⟨rfl, rfl⟩ | fail "value"
/-- Step 53 of the loop: operations 1173 … 1194 of the program. -/
abbrev stepOps53 : List (HloOp τ sig (Elt F)) :=
  [ unary main_v3 main_v1064 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1055 main_v1064 main_v1065 (mulf : (⟨S4x256x16, .f32⟩ : BufTy).Contents (Elt F) → (⟨S4x256x16, .f32⟩ : BufTy).Contents (Elt F) → (⟨S4x256x16, .f32⟩ : BufTy).Contents (Elt F)),
    unary main_arg0 main_v1066 ((extractStridedSlice S4x1x256 ![0, 53, 0] · slices_S4x512x256_S4x1x256_0_53_0) : (⟨S4x512x256, .f32⟩ : BufTy).Contents (Elt F) → (⟨S4x1x256, .f32⟩ : BufTy).Contents (Elt F)),
    reshape main_v1066 main_v1067 rfl shapeCasts_S4x1x256_S4x256,
    unary main_v1067 main_v1068 (broadcastInDim S4x256x1 ![0, 1] bcast_S4x256_S4x256x1_0_1 : (⟨S4x256, .f32⟩ : BufTy).Contents (Elt F) → (⟨S4x256x1, .f32⟩ : BufTy).Contents (Elt F)),
    unary main_arg2 main_v1069 ((extractStridedSlice S4x1x16 ![0, 53, 0] · slices_S4x512x16_S4x1x16_0_53_0) : (⟨S4x512x16, .f32⟩ : BufTy).Contents (Elt F) → (⟨S4x1x16, .f32⟩ : BufTy).Contents (Elt F)),
    reshape main_v1069 main_v1070 rfl shapeCasts_S4x1x16_S4x16,
    unary main_v1070 main_v1071 (broadcastInDim S4x1x16 ![0, 2] bcast_S4x16_S4x1x16_0_2 : (⟨S4x16, .f32⟩ : BufTy).Contents (Elt F) → (⟨S4x1x16, .f32⟩ : BufTy).Contents (Elt F)),
    unary main_v1068 main_v1072 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1071 main_v1073 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1072 main_v1073 main_v1074 (mulf : (⟨S4x256x16, .f32⟩ : BufTy).Contents (Elt F) → (⟨S4x256x16, .f32⟩ : BufTy).Contents (Elt F) → (⟨S4x256x16, .f32⟩ : BufTy).Contents (Elt F)),
    binary main_v1065 main_v1074 main_v1075 (addf : (⟨S4x256x16, .f32⟩ : BufTy).Contents (Elt F) → (⟨S4x256x16, .f32⟩ : BufTy).Contents (Elt F) → (⟨S4x256x16, .f32⟩ : BufTy).Contents (Elt F)),
    unary main_arg3 main_v1076 ((extractStridedSlice S4x1x16 ![0, 53, 0] · slices_S4x512x16_S4x1x16_0_53_0) : (⟨S4x512x16, .f32⟩ : BufTy).Contents (Elt F) → (⟨S4x1x16, .f32⟩ : BufTy).Contents (Elt F)),
    reshape main_v1076 main_v1077 rfl shapeCasts_S4x1x16_S4x16,
    unary main_v1077 main_v1078 (broadcastInDim S4x1x16 ![0, 2] bcast_S4x16_S4x1x16_0_2 : (⟨S4x16, .f32⟩ : BufTy).Contents (Elt F) → (⟨S4x1x16, .f32⟩ : BufTy).Contents (Elt F)),
    unary main_v1078 main_v1079 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1075 main_v1079 main_v1080 (mulf : (⟨S4x256x16, .f32⟩ : BufTy).Contents (Elt F) → (⟨S4x256x16, .f32⟩ : BufTy).Contents (Elt F) → (⟨S4x256x16, .f32⟩ : BufTy).Contents (Elt F)),
    nullary main_cst_106 (constant S_ .f32 0x00000000#32),
    binary main_v1080 main_cst_106 main_v1081 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_107 (constantI S_ 32 53#32),
    unary main_c_107 main_v1082 (broadcastInDim S1 ![] bcast_S_S1 : (⟨S_, .i32⟩ : BufTy).Contents (Elt F) → (⟨S1, .i32⟩ : BufTy).Contents (Elt F)),
    ternary main_v1063 main_v1082 main_v1081 main_v1083 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps53_ok : (stepOps53 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step53_val (V : Valuation τ sig (Elt Ideal)) :
    after (stepOps53 (F := Ideal)) V (no_index (Proc.devRef .tc main_v1075)) = stepH 53 (by decide) (V (Proc.devRef .tc main_arg0)) (V (Proc.devRef .tc main_v3)) (V (Proc.devRef .tc main_arg2)) (V (Proc.devRef .tc main_v1055))
    ∧ after (stepOps53 (F := Ideal)) V (no_index (Proc.devRef .tc main_v1083)) = stepY 53 (by decide) (V (Proc.devRef .tc main_arg3)) (stepH 53 (by decide) (V (Proc.devRef .tc main_arg0)) (V (Proc.devRef .tc main_v3)) (V (Proc.devRef .tc main_arg2)) (V (Proc.devRef .tc main_v1055))) (V (Proc.devRef .tc main_v1063)) := by
  simp only [stepOps53]
  after_results_simp
  first | exact ⟨rfl, rfl⟩ | fail "value"
/-- Step 54 of the loop: operations 1195 … 1216 of the program. -/
abbrev stepOps54 : List (HloOp τ sig (Elt F)) :=
  [ unary main_v3 main_v1084 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1075 main_v1084 main_v1085 (mulf : (⟨S4x256x16, .f32⟩ : BufTy).Contents (Elt F) → (⟨S4x256x16, .f32⟩ : BufTy).Contents (Elt F) → (⟨S4x256x16, .f32⟩ : BufTy).Contents (Elt F)),
    unary main_arg0 main_v1086 ((extractStridedSlice S4x1x256 ![0, 54, 0] · slices_S4x512x256_S4x1x256_0_54_0) : (⟨S4x512x256, .f32⟩ : BufTy).Contents (Elt F) → (⟨S4x1x256, .f32⟩ : BufTy).Contents (Elt F)),
    reshape main_v1086 main_v1087 rfl shapeCasts_S4x1x256_S4x256,
    unary main_v1087 main_v1088 (broadcastInDim S4x256x1 ![0, 1] bcast_S4x256_S4x256x1_0_1 : (⟨S4x256, .f32⟩ : BufTy).Contents (Elt F) → (⟨S4x256x1, .f32⟩ : BufTy).Contents (Elt F)),
    unary main_arg2 main_v1089 ((extractStridedSlice S4x1x16 ![0, 54, 0] · slices_S4x512x16_S4x1x16_0_54_0) : (⟨S4x512x16, .f32⟩ : BufTy).Contents (Elt F) → (⟨S4x1x16, .f32⟩ : BufTy).Contents (Elt F)),
    reshape main_v1089 main_v1090 rfl shapeCasts_S4x1x16_S4x16,
    unary main_v1090 main_v1091 (broadcastInDim S4x1x16 ![0, 2] bcast_S4x16_S4x1x16_0_2 : (⟨S4x16, .f32⟩ : BufTy).Contents (Elt F) → (⟨S4x1x16, .f32⟩ : BufTy).Contents (Elt F)),
    unary main_v1088 main_v1092 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1091 main_v1093 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1092 main_v1093 main_v1094 (mulf : (⟨S4x256x16, .f32⟩ : BufTy).Contents (Elt F) → (⟨S4x256x16, .f32⟩ : BufTy).Contents (Elt F) → (⟨S4x256x16, .f32⟩ : BufTy).Contents (Elt F)),
    binary main_v1085 main_v1094 main_v1095 (addf : (⟨S4x256x16, .f32⟩ : BufTy).Contents (Elt F) → (⟨S4x256x16, .f32⟩ : BufTy).Contents (Elt F) → (⟨S4x256x16, .f32⟩ : BufTy).Contents (Elt F)),
    unary main_arg3 main_v1096 ((extractStridedSlice S4x1x16 ![0, 54, 0] · slices_S4x512x16_S4x1x16_0_54_0) : (⟨S4x512x16, .f32⟩ : BufTy).Contents (Elt F) → (⟨S4x1x16, .f32⟩ : BufTy).Contents (Elt F)),
    reshape main_v1096 main_v1097 rfl shapeCasts_S4x1x16_S4x16,
    unary main_v1097 main_v1098 (broadcastInDim S4x1x16 ![0, 2] bcast_S4x16_S4x1x16_0_2 : (⟨S4x16, .f32⟩ : BufTy).Contents (Elt F) → (⟨S4x1x16, .f32⟩ : BufTy).Contents (Elt F)),
    unary main_v1098 main_v1099 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1095 main_v1099 main_v1100 (mulf : (⟨S4x256x16, .f32⟩ : BufTy).Contents (Elt F) → (⟨S4x256x16, .f32⟩ : BufTy).Contents (Elt F) → (⟨S4x256x16, .f32⟩ : BufTy).Contents (Elt F)),
    nullary main_cst_108 (constant S_ .f32 0x00000000#32),
    binary main_v1100 main_cst_108 main_v1101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_109 (constantI S_ 32 54#32),
    unary main_c_109 main_v1102 (broadcastInDim S1 ![] bcast_S_S1 : (⟨S_, .i32⟩ : BufTy).Contents (Elt F) → (⟨S1, .i32⟩ : BufTy).Contents (Elt F)),
    ternary main_v1083 main_v1102 main_v1101 main_v1103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps54_ok : (stepOps54 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step54_val (V : Valuation τ sig (Elt Ideal)) :
    after (stepOps54 (F := Ideal)) V (no_index (Proc.devRef .tc main_v1095)) = stepH 54 (by decide) (V (Proc.devRef .tc main_arg0)) (V (Proc.devRef .tc main_v3)) (V (Proc.devRef .tc main_arg2)) (V (Proc.devRef .tc main_v1075))
    ∧ after (stepOps54 (F := Ideal)) V (no_index (Proc.devRef .tc main_v1103)) = stepY 54 (by decide) (V (Proc.devRef .tc main_arg3)) (stepH 54 (by decide) (V (Proc.devRef .tc main_arg0)) (V (Proc.devRef .tc main_v3)) (V (Proc.devRef .tc main_arg2)) (V (Proc.devRef .tc main_v1075))) (V (Proc.devRef .tc main_v1083)) := by
  simp only [stepOps54]
  after_results_simp
  first | exact ⟨rfl, rfl⟩ | fail "value"
/-- Step 55 of the loop: operations 1217 … 1238 of the program. -/
abbrev stepOps55 : List (HloOp τ sig (Elt F)) :=
  [ unary main_v3 main_v1104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1095 main_v1104 main_v1105 (mulf : (⟨S4x256x16, .f32⟩ : BufTy).Contents (Elt F) → (⟨S4x256x16, .f32⟩ : BufTy).Contents (Elt F) → (⟨S4x256x16, .f32⟩ : BufTy).Contents (Elt F)),
    unary main_arg0 main_v1106 ((extractStridedSlice S4x1x256 ![0, 55, 0] · slices_S4x512x256_S4x1x256_0_55_0) : (⟨S4x512x256, .f32⟩ : BufTy).Contents (Elt F) → (⟨S4x1x256, .f32⟩ : BufTy).Contents (Elt F)),
    reshape main_v1106 main_v1107 rfl shapeCasts_S4x1x256_S4x256,
    unary main_v1107 main_v1108 (broadcastInDim S4x256x1 ![0, 1] bcast_S4x256_S4x256x1_0_1 : (⟨S4x256, .f32⟩ : BufTy).Contents (Elt F) → (⟨S4x256x1, .f32⟩ : BufTy).Contents (Elt F)),
    unary main_arg2 main_v1109 ((extractStridedSlice S4x1x16 ![0, 55, 0] · slices_S4x512x16_S4x1x16_0_55_0) : (⟨S4x512x16, .f32⟩ : BufTy).Contents (Elt F) → (⟨S4x1x16, .f32⟩ : BufTy).Contents (Elt F)),
    reshape main_v1109 main_v1110 rfl shapeCasts_S4x1x16_S4x16,
    unary main_v1110 main_v1111 (broadcastInDim S4x1x16 ![0, 2] bcast_S4x16_S4x1x16_0_2 : (⟨S4x16, .f32⟩ : BufTy).Contents (Elt F) → (⟨S4x1x16, .f32⟩ : BufTy).Contents (Elt F)),
    unary main_v1108 main_v1112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1111 main_v1113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1112 main_v1113 main_v1114 (mulf : (⟨S4x256x16, .f32⟩ : BufTy).Contents (Elt F) → (⟨S4x256x16, .f32⟩ : BufTy).Contents (Elt F) → (⟨S4x256x16, .f32⟩ : BufTy).Contents (Elt F)),
    binary main_v1105 main_v1114 main_v1115 (addf : (⟨S4x256x16, .f32⟩ : BufTy).Contents (Elt F) → (⟨S4x256x16, .f32⟩ : BufTy).Contents (Elt F) → (⟨S4x256x16, .f32⟩ : BufTy).Contents (Elt F)),
    unary main_arg3 main_v1116 ((extractStridedSlice S4x1x16 ![0, 55, 0] · slices_S4x512x16_S4x1x16_0_55_0) : (⟨S4x512x16, .f32⟩ : BufTy).Contents (Elt F) → (⟨S4x1x16, .f32⟩ : BufTy).Contents (Elt F)),
    reshape main_v1116 main_v1117 rfl shapeCasts_S4x1x16_S4x16,
    unary main_v1117 main_v1118 (broadcastInDim S4x1x16 ![0, 2] bcast_S4x16_S4x1x16_0_2 : (⟨S4x16, .f32⟩ : BufTy).Contents (Elt F) → (⟨S4x1x16, .f32⟩ : BufTy).Contents (Elt F)),
    unary main_v1118 main_v1119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1115 main_v1119 main_v1120 (mulf : (⟨S4x256x16, .f32⟩ : BufTy).Contents (Elt F) → (⟨S4x256x16, .f32⟩ : BufTy).Contents (Elt F) → (⟨S4x256x16, .f32⟩ : BufTy).Contents (Elt F)),
    nullary main_cst_110 (constant S_ .f32 0x00000000#32),
    binary main_v1120 main_cst_110 main_v1121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_111 (constantI S_ 32 55#32),
    unary main_c_111 main_v1122 (broadcastInDim S1 ![] bcast_S_S1 : (⟨S_, .i32⟩ : BufTy).Contents (Elt F) → (⟨S1, .i32⟩ : BufTy).Contents (Elt F)),
    ternary main_v1103 main_v1122 main_v1121 main_v1123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps55_ok : (stepOps55 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step55_val (V : Valuation τ sig (Elt Ideal)) :
    after (stepOps55 (F := Ideal)) V (no_index (Proc.devRef .tc main_v1115)) = stepH 55 (by decide) (V (Proc.devRef .tc main_arg0)) (V (Proc.devRef .tc main_v3)) (V (Proc.devRef .tc main_arg2)) (V (Proc.devRef .tc main_v1095))
    ∧ after (stepOps55 (F := Ideal)) V (no_index (Proc.devRef .tc main_v1123)) = stepY 55 (by decide) (V (Proc.devRef .tc main_arg3)) (stepH 55 (by decide) (V (Proc.devRef .tc main_arg0)) (V (Proc.devRef .tc main_v3)) (V (Proc.devRef .tc main_arg2)) (V (Proc.devRef .tc main_v1095))) (V (Proc.devRef .tc main_v1103)) := by
  simp only [stepOps55]
  after_results_simp
  first | exact ⟨rfl, rfl⟩ | fail "value"
/-- Step 56 of the loop: operations 1239 … 1260 of the program. -/
abbrev stepOps56 : List (HloOp τ sig (Elt F)) :=
  [ unary main_v3 main_v1124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1115 main_v1124 main_v1125 (mulf : (⟨S4x256x16, .f32⟩ : BufTy).Contents (Elt F) → (⟨S4x256x16, .f32⟩ : BufTy).Contents (Elt F) → (⟨S4x256x16, .f32⟩ : BufTy).Contents (Elt F)),
    unary main_arg0 main_v1126 ((extractStridedSlice S4x1x256 ![0, 56, 0] · slices_S4x512x256_S4x1x256_0_56_0) : (⟨S4x512x256, .f32⟩ : BufTy).Contents (Elt F) → (⟨S4x1x256, .f32⟩ : BufTy).Contents (Elt F)),
    reshape main_v1126 main_v1127 rfl shapeCasts_S4x1x256_S4x256,
    unary main_v1127 main_v1128 (broadcastInDim S4x256x1 ![0, 1] bcast_S4x256_S4x256x1_0_1 : (⟨S4x256, .f32⟩ : BufTy).Contents (Elt F) → (⟨S4x256x1, .f32⟩ : BufTy).Contents (Elt F)),
    unary main_arg2 main_v1129 ((extractStridedSlice S4x1x16 ![0, 56, 0] · slices_S4x512x16_S4x1x16_0_56_0) : (⟨S4x512x16, .f32⟩ : BufTy).Contents (Elt F) → (⟨S4x1x16, .f32⟩ : BufTy).Contents (Elt F)),
    reshape main_v1129 main_v1130 rfl shapeCasts_S4x1x16_S4x16,
    unary main_v1130 main_v1131 (broadcastInDim S4x1x16 ![0, 2] bcast_S4x16_S4x1x16_0_2 : (⟨S4x16, .f32⟩ : BufTy).Contents (Elt F) → (⟨S4x1x16, .f32⟩ : BufTy).Contents (Elt F)),
    unary main_v1128 main_v1132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1131 main_v1133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1132 main_v1133 main_v1134 (mulf : (⟨S4x256x16, .f32⟩ : BufTy).Contents (Elt F) → (⟨S4x256x16, .f32⟩ : BufTy).Contents (Elt F) → (⟨S4x256x16, .f32⟩ : BufTy).Contents (Elt F)),
    binary main_v1125 main_v1134 main_v1135 (addf : (⟨S4x256x16, .f32⟩ : BufTy).Contents (Elt F) → (⟨S4x256x16, .f32⟩ : BufTy).Contents (Elt F) → (⟨S4x256x16, .f32⟩ : BufTy).Contents (Elt F)),
    unary main_arg3 main_v1136 ((extractStridedSlice S4x1x16 ![0, 56, 0] · slices_S4x512x16_S4x1x16_0_56_0) : (⟨S4x512x16, .f32⟩ : BufTy).Contents (Elt F) → (⟨S4x1x16, .f32⟩ : BufTy).Contents (Elt F)),
    reshape main_v1136 main_v1137 rfl shapeCasts_S4x1x16_S4x16,
    unary main_v1137 main_v1138 (broadcastInDim S4x1x16 ![0, 2] bcast_S4x16_S4x1x16_0_2 : (⟨S4x16, .f32⟩ : BufTy).Contents (Elt F) → (⟨S4x1x16, .f32⟩ : BufTy).Contents (Elt F)),
    unary main_v1138 main_v1139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1135 main_v1139 main_v1140 (mulf : (⟨S4x256x16, .f32⟩ : BufTy).Contents (Elt F) → (⟨S4x256x16, .f32⟩ : BufTy).Contents (Elt F) → (⟨S4x256x16, .f32⟩ : BufTy).Contents (Elt F)),
    nullary main_cst_112 (constant S_ .f32 0x00000000#32),
    binary main_v1140 main_cst_112 main_v1141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_113 (constantI S_ 32 56#32),
    unary main_c_113 main_v1142 (broadcastInDim S1 ![] bcast_S_S1 : (⟨S_, .i32⟩ : BufTy).Contents (Elt F) → (⟨S1, .i32⟩ : BufTy).Contents (Elt F)),
    ternary main_v1123 main_v1142 main_v1141 main_v1143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps56_ok : (stepOps56 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step56_val (V : Valuation τ sig (Elt Ideal)) :
    after (stepOps56 (F := Ideal)) V (no_index (Proc.devRef .tc main_v1135)) = stepH 56 (by decide) (V (Proc.devRef .tc main_arg0)) (V (Proc.devRef .tc main_v3)) (V (Proc.devRef .tc main_arg2)) (V (Proc.devRef .tc main_v1115))
    ∧ after (stepOps56 (F := Ideal)) V (no_index (Proc.devRef .tc main_v1143)) = stepY 56 (by decide) (V (Proc.devRef .tc main_arg3)) (stepH 56 (by decide) (V (Proc.devRef .tc main_arg0)) (V (Proc.devRef .tc main_v3)) (V (Proc.devRef .tc main_arg2)) (V (Proc.devRef .tc main_v1115))) (V (Proc.devRef .tc main_v1123)) := by
  simp only [stepOps56]
  after_results_simp
  first | exact ⟨rfl, rfl⟩ | fail "value"
/-- Step 57 of the loop: operations 1261 … 1282 of the program. -/
abbrev stepOps57 : List (HloOp τ sig (Elt F)) :=
  [ unary main_v3 main_v1144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1135 main_v1144 main_v1145 (mulf : (⟨S4x256x16, .f32⟩ : BufTy).Contents (Elt F) → (⟨S4x256x16, .f32⟩ : BufTy).Contents (Elt F) → (⟨S4x256x16, .f32⟩ : BufTy).Contents (Elt F)),
    unary main_arg0 main_v1146 ((extractStridedSlice S4x1x256 ![0, 57, 0] · slices_S4x512x256_S4x1x256_0_57_0) : (⟨S4x512x256, .f32⟩ : BufTy).Contents (Elt F) → (⟨S4x1x256, .f32⟩ : BufTy).Contents (Elt F)),
    reshape main_v1146 main_v1147 rfl shapeCasts_S4x1x256_S4x256,
    unary main_v1147 main_v1148 (broadcastInDim S4x256x1 ![0, 1] bcast_S4x256_S4x256x1_0_1 : (⟨S4x256, .f32⟩ : BufTy).Contents (Elt F) → (⟨S4x256x1, .f32⟩ : BufTy).Contents (Elt F)),
    unary main_arg2 main_v1149 ((extractStridedSlice S4x1x16 ![0, 57, 0] · slices_S4x512x16_S4x1x16_0_57_0) : (⟨S4x512x16, .f32⟩ : BufTy).Contents (Elt F) → (⟨S4x1x16, .f32⟩ : BufTy).Contents (Elt F)),
    reshape main_v1149 main_v1150 rfl shapeCasts_S4x1x16_S4x16,
    unary main_v1150 main_v1151 (broadcastInDim S4x1x16 ![0, 2] bcast_S4x16_S4x1x16_0_2 : (⟨S4x16, .f32⟩ : BufTy).Contents (Elt F) → (⟨S4x1x16, .f32⟩ : BufTy).Contents (Elt F)),
    unary main_v1148 main_v1152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1151 main_v1153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1152 main_v1153 main_v1154 (mulf : (⟨S4x256x16, .f32⟩ : BufTy).Contents (Elt F) → (⟨S4x256x16, .f32⟩ : BufTy).Contents (Elt F) → (⟨S4x256x16, .f32⟩ : BufTy).Contents (Elt F)),
    binary main_v1145 main_v1154 main_v1155 (addf : (⟨S4x256x16, .f32⟩ : BufTy).Contents (Elt F) → (⟨S4x256x16, .f32⟩ : BufTy).Contents (Elt F) → (⟨S4x256x16, .f32⟩ : BufTy).Contents (Elt F)),
    unary main_arg3 main_v1156 ((extractStridedSlice S4x1x16 ![0, 57, 0] · slices_S4x512x16_S4x1x16_0_57_0) : (⟨S4x512x16, .f32⟩ : BufTy).Contents (Elt F) → (⟨S4x1x16, .f32⟩ : BufTy).Contents (Elt F)),
    reshape main_v1156 main_v1157 rfl shapeCasts_S4x1x16_S4x16,
    unary main_v1157 main_v1158 (broadcastInDim S4x1x16 ![0, 2] bcast_S4x16_S4x1x16_0_2 : (⟨S4x16, .f32⟩ : BufTy).Contents (Elt F) → (⟨S4x1x16, .f32⟩ : BufTy).Contents (Elt F)),
    unary main_v1158 main_v1159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1155 main_v1159 main_v1160 (mulf : (⟨S4x256x16, .f32⟩ : BufTy).Contents (Elt F) → (⟨S4x256x16, .f32⟩ : BufTy).Contents (Elt F) → (⟨S4x256x16, .f32⟩ : BufTy).Contents (Elt F)),
    nullary main_cst_114 (constant S_ .f32 0x00000000#32),
    binary main_v1160 main_cst_114 main_v1161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_115 (constantI S_ 32 57#32),
    unary main_c_115 main_v1162 (broadcastInDim S1 ![] bcast_S_S1 : (⟨S_, .i32⟩ : BufTy).Contents (Elt F) → (⟨S1, .i32⟩ : BufTy).Contents (Elt F)),
    ternary main_v1143 main_v1162 main_v1161 main_v1163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps57_ok : (stepOps57 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step57_val (V : Valuation τ sig (Elt Ideal)) :
    after (stepOps57 (F := Ideal)) V (no_index (Proc.devRef .tc main_v1155)) = stepH 57 (by decide) (V (Proc.devRef .tc main_arg0)) (V (Proc.devRef .tc main_v3)) (V (Proc.devRef .tc main_arg2)) (V (Proc.devRef .tc main_v1135))
    ∧ after (stepOps57 (F := Ideal)) V (no_index (Proc.devRef .tc main_v1163)) = stepY 57 (by decide) (V (Proc.devRef .tc main_arg3)) (stepH 57 (by decide) (V (Proc.devRef .tc main_arg0)) (V (Proc.devRef .tc main_v3)) (V (Proc.devRef .tc main_arg2)) (V (Proc.devRef .tc main_v1135))) (V (Proc.devRef .tc main_v1143)) := by
  simp only [stepOps57]
  after_results_simp
  first | exact ⟨rfl, rfl⟩ | fail "value"
/-- Step 58 of the loop: operations 1283 … 1304 of the program. -/
abbrev stepOps58 : List (HloOp τ sig (Elt F)) :=
  [ unary main_v3 main_v1164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1155 main_v1164 main_v1165 (mulf : (⟨S4x256x16, .f32⟩ : BufTy).Contents (Elt F) → (⟨S4x256x16, .f32⟩ : BufTy).Contents (Elt F) → (⟨S4x256x16, .f32⟩ : BufTy).Contents (Elt F)),
    unary main_arg0 main_v1166 ((extractStridedSlice S4x1x256 ![0, 58, 0] · slices_S4x512x256_S4x1x256_0_58_0) : (⟨S4x512x256, .f32⟩ : BufTy).Contents (Elt F) → (⟨S4x1x256, .f32⟩ : BufTy).Contents (Elt F)),
    reshape main_v1166 main_v1167 rfl shapeCasts_S4x1x256_S4x256,
    unary main_v1167 main_v1168 (broadcastInDim S4x256x1 ![0, 1] bcast_S4x256_S4x256x1_0_1 : (⟨S4x256, .f32⟩ : BufTy).Contents (Elt F) → (⟨S4x256x1, .f32⟩ : BufTy).Contents (Elt F)),
    unary main_arg2 main_v1169 ((extractStridedSlice S4x1x16 ![0, 58, 0] · slices_S4x512x16_S4x1x16_0_58_0) : (⟨S4x512x16, .f32⟩ : BufTy).Contents (Elt F) → (⟨S4x1x16, .f32⟩ : BufTy).Contents (Elt F)),
    reshape main_v1169 main_v1170 rfl shapeCasts_S4x1x16_S4x16,
    unary main_v1170 main_v1171 (broadcastInDim S4x1x16 ![0, 2] bcast_S4x16_S4x1x16_0_2 : (⟨S4x16, .f32⟩ : BufTy).Contents (Elt F) → (⟨S4x1x16, .f32⟩ : BufTy).Contents (Elt F)),
    unary main_v1168 main_v1172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1171 main_v1173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1172 main_v1173 main_v1174 (mulf : (⟨S4x256x16, .f32⟩ : BufTy).Contents (Elt F) → (⟨S4x256x16, .f32⟩ : BufTy).Contents (Elt F) → (⟨S4x256x16, .f32⟩ : BufTy).Contents (Elt F)),
    binary main_v1165 main_v1174 main_v1175 (addf : (⟨S4x256x16, .f32⟩ : BufTy).Contents (Elt F) → (⟨S4x256x16, .f32⟩ : BufTy).Contents (Elt F) → (⟨S4x256x16, .f32⟩ : BufTy).Contents (Elt F)),
    unary main_arg3 main_v1176 ((extractStridedSlice S4x1x16 ![0, 58, 0] · slices_S4x512x16_S4x1x16_0_58_0) : (⟨S4x512x16, .f32⟩ : BufTy).Contents (Elt F) → (⟨S4x1x16, .f32⟩ : BufTy).Contents (Elt F)),
    reshape main_v1176 main_v1177 rfl shapeCasts_S4x1x16_S4x16,
    unary main_v1177 main_v1178 (broadcastInDim S4x1x16 ![0, 2] bcast_S4x16_S4x1x16_0_2 : (⟨S4x16, .f32⟩ : BufTy).Contents (Elt F) → (⟨S4x1x16, .f32⟩ : BufTy).Contents (Elt F)),
    unary main_v1178 main_v1179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1175 main_v1179 main_v1180 (mulf : (⟨S4x256x16, .f32⟩ : BufTy).Contents (Elt F) → (⟨S4x256x16, .f32⟩ : BufTy).Contents (Elt F) → (⟨S4x256x16, .f32⟩ : BufTy).Contents (Elt F)),
    nullary main_cst_116 (constant S_ .f32 0x00000000#32),
    binary main_v1180 main_cst_116 main_v1181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_117 (constantI S_ 32 58#32),
    unary main_c_117 main_v1182 (broadcastInDim S1 ![] bcast_S_S1 : (⟨S_, .i32⟩ : BufTy).Contents (Elt F) → (⟨S1, .i32⟩ : BufTy).Contents (Elt F)),
    ternary main_v1163 main_v1182 main_v1181 main_v1183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps58_ok : (stepOps58 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step58_val (V : Valuation τ sig (Elt Ideal)) :
    after (stepOps58 (F := Ideal)) V (no_index (Proc.devRef .tc main_v1175)) = stepH 58 (by decide) (V (Proc.devRef .tc main_arg0)) (V (Proc.devRef .tc main_v3)) (V (Proc.devRef .tc main_arg2)) (V (Proc.devRef .tc main_v1155))
    ∧ after (stepOps58 (F := Ideal)) V (no_index (Proc.devRef .tc main_v1183)) = stepY 58 (by decide) (V (Proc.devRef .tc main_arg3)) (stepH 58 (by decide) (V (Proc.devRef .tc main_arg0)) (V (Proc.devRef .tc main_v3)) (V (Proc.devRef .tc main_arg2)) (V (Proc.devRef .tc main_v1155))) (V (Proc.devRef .tc main_v1163)) := by
  simp only [stepOps58]
  after_results_simp
  first | exact ⟨rfl, rfl⟩ | fail "value"
/-- Step 59 of the loop: operations 1305 … 1326 of the program. -/
abbrev stepOps59 : List (HloOp τ sig (Elt F)) :=
  [ unary main_v3 main_v1184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1175 main_v1184 main_v1185 (mulf : (⟨S4x256x16, .f32⟩ : BufTy).Contents (Elt F) → (⟨S4x256x16, .f32⟩ : BufTy).Contents (Elt F) → (⟨S4x256x16, .f32⟩ : BufTy).Contents (Elt F)),
    unary main_arg0 main_v1186 ((extractStridedSlice S4x1x256 ![0, 59, 0] · slices_S4x512x256_S4x1x256_0_59_0) : (⟨S4x512x256, .f32⟩ : BufTy).Contents (Elt F) → (⟨S4x1x256, .f32⟩ : BufTy).Contents (Elt F)),
    reshape main_v1186 main_v1187 rfl shapeCasts_S4x1x256_S4x256,
    unary main_v1187 main_v1188 (broadcastInDim S4x256x1 ![0, 1] bcast_S4x256_S4x256x1_0_1 : (⟨S4x256, .f32⟩ : BufTy).Contents (Elt F) → (⟨S4x256x1, .f32⟩ : BufTy).Contents (Elt F)),
    unary main_arg2 main_v1189 ((extractStridedSlice S4x1x16 ![0, 59, 0] · slices_S4x512x16_S4x1x16_0_59_0) : (⟨S4x512x16, .f32⟩ : BufTy).Contents (Elt F) → (⟨S4x1x16, .f32⟩ : BufTy).Contents (Elt F)),
    reshape main_v1189 main_v1190 rfl shapeCasts_S4x1x16_S4x16,
    unary main_v1190 main_v1191 (broadcastInDim S4x1x16 ![0, 2] bcast_S4x16_S4x1x16_0_2 : (⟨S4x16, .f32⟩ : BufTy).Contents (Elt F) → (⟨S4x1x16, .f32⟩ : BufTy).Contents (Elt F)),
    unary main_v1188 main_v1192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1191 main_v1193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1192 main_v1193 main_v1194 (mulf : (⟨S4x256x16, .f32⟩ : BufTy).Contents (Elt F) → (⟨S4x256x16, .f32⟩ : BufTy).Contents (Elt F) → (⟨S4x256x16, .f32⟩ : BufTy).Contents (Elt F)),
    binary main_v1185 main_v1194 main_v1195 (addf : (⟨S4x256x16, .f32⟩ : BufTy).Contents (Elt F) → (⟨S4x256x16, .f32⟩ : BufTy).Contents (Elt F) → (⟨S4x256x16, .f32⟩ : BufTy).Contents (Elt F)),
    unary main_arg3 main_v1196 ((extractStridedSlice S4x1x16 ![0, 59, 0] · slices_S4x512x16_S4x1x16_0_59_0) : (⟨S4x512x16, .f32⟩ : BufTy).Contents (Elt F) → (⟨S4x1x16, .f32⟩ : BufTy).Contents (Elt F)),
    reshape main_v1196 main_v1197 rfl shapeCasts_S4x1x16_S4x16,
    unary main_v1197 main_v1198 (broadcastInDim S4x1x16 ![0, 2] bcast_S4x16_S4x1x16_0_2 : (⟨S4x16, .f32⟩ : BufTy).Contents (Elt F) → (⟨S4x1x16, .f32⟩ : BufTy).Contents (Elt F)),
    unary main_v1198 main_v1199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1195 main_v1199 main_v1200 (mulf : (⟨S4x256x16, .f32⟩ : BufTy).Contents (Elt F) → (⟨S4x256x16, .f32⟩ : BufTy).Contents (Elt F) → (⟨S4x256x16, .f32⟩ : BufTy).Contents (Elt F)),
    nullary main_cst_118 (constant S_ .f32 0x00000000#32),
    binary main_v1200 main_cst_118 main_v1201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_119 (constantI S_ 32 59#32),
    unary main_c_119 main_v1202 (broadcastInDim S1 ![] bcast_S_S1 : (⟨S_, .i32⟩ : BufTy).Contents (Elt F) → (⟨S1, .i32⟩ : BufTy).Contents (Elt F)),
    ternary main_v1183 main_v1202 main_v1201 main_v1203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps59_ok : (stepOps59 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step59_val (V : Valuation τ sig (Elt Ideal)) :
    after (stepOps59 (F := Ideal)) V (no_index (Proc.devRef .tc main_v1195)) = stepH 59 (by decide) (V (Proc.devRef .tc main_arg0)) (V (Proc.devRef .tc main_v3)) (V (Proc.devRef .tc main_arg2)) (V (Proc.devRef .tc main_v1175))
    ∧ after (stepOps59 (F := Ideal)) V (no_index (Proc.devRef .tc main_v1203)) = stepY 59 (by decide) (V (Proc.devRef .tc main_arg3)) (stepH 59 (by decide) (V (Proc.devRef .tc main_arg0)) (V (Proc.devRef .tc main_v3)) (V (Proc.devRef .tc main_arg2)) (V (Proc.devRef .tc main_v1175))) (V (Proc.devRef .tc main_v1183)) := by
  simp only [stepOps59]
  after_results_simp
  first | exact ⟨rfl, rfl⟩ | fail "value"
/-- Step 60 of the loop: operations 1327 … 1348 of the program. -/
abbrev stepOps60 : List (HloOp τ sig (Elt F)) :=
  [ unary main_v3 main_v1204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1195 main_v1204 main_v1205 (mulf : (⟨S4x256x16, .f32⟩ : BufTy).Contents (Elt F) → (⟨S4x256x16, .f32⟩ : BufTy).Contents (Elt F) → (⟨S4x256x16, .f32⟩ : BufTy).Contents (Elt F)),
    unary main_arg0 main_v1206 ((extractStridedSlice S4x1x256 ![0, 60, 0] · slices_S4x512x256_S4x1x256_0_60_0) : (⟨S4x512x256, .f32⟩ : BufTy).Contents (Elt F) → (⟨S4x1x256, .f32⟩ : BufTy).Contents (Elt F)),
    reshape main_v1206 main_v1207 rfl shapeCasts_S4x1x256_S4x256,
    unary main_v1207 main_v1208 (broadcastInDim S4x256x1 ![0, 1] bcast_S4x256_S4x256x1_0_1 : (⟨S4x256, .f32⟩ : BufTy).Contents (Elt F) → (⟨S4x256x1, .f32⟩ : BufTy).Contents (Elt F)),
    unary main_arg2 main_v1209 ((extractStridedSlice S4x1x16 ![0, 60, 0] · slices_S4x512x16_S4x1x16_0_60_0) : (⟨S4x512x16, .f32⟩ : BufTy).Contents (Elt F) → (⟨S4x1x16, .f32⟩ : BufTy).Contents (Elt F)),
    reshape main_v1209 main_v1210 rfl shapeCasts_S4x1x16_S4x16,
    unary main_v1210 main_v1211 (broadcastInDim S4x1x16 ![0, 2] bcast_S4x16_S4x1x16_0_2 : (⟨S4x16, .f32⟩ : BufTy).Contents (Elt F) → (⟨S4x1x16, .f32⟩ : BufTy).Contents (Elt F)),
    unary main_v1208 main_v1212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1211 main_v1213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1212 main_v1213 main_v1214 (mulf : (⟨S4x256x16, .f32⟩ : BufTy).Contents (Elt F) → (⟨S4x256x16, .f32⟩ : BufTy).Contents (Elt F) → (⟨S4x256x16, .f32⟩ : BufTy).Contents (Elt F)),
    binary main_v1205 main_v1214 main_v1215 (addf : (⟨S4x256x16, .f32⟩ : BufTy).Contents (Elt F) → (⟨S4x256x16, .f32⟩ : BufTy).Contents (Elt F) → (⟨S4x256x16, .f32⟩ : BufTy).Contents (Elt F)),
    unary main_arg3 main_v1216 ((extractStridedSlice S4x1x16 ![0, 60, 0] · slices_S4x512x16_S4x1x16_0_60_0) : (⟨S4x512x16, .f32⟩ : BufTy).Contents (Elt F) → (⟨S4x1x16, .f32⟩ : BufTy).Contents (Elt F)),
    reshape main_v1216 main_v1217 rfl shapeCasts_S4x1x16_S4x16,
    unary main_v1217 main_v1218 (broadcastInDim S4x1x16 ![0, 2] bcast_S4x16_S4x1x16_0_2 : (⟨S4x16, .f32⟩ : BufTy).Contents (Elt F) → (⟨S4x1x16, .f32⟩ : BufTy).Contents (Elt F)),
    unary main_v1218 main_v1219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1215 main_v1219 main_v1220 (mulf : (⟨S4x256x16, .f32⟩ : BufTy).Contents (Elt F) → (⟨S4x256x16, .f32⟩ : BufTy).Contents (Elt F) → (⟨S4x256x16, .f32⟩ : BufTy).Contents (Elt F)),
    nullary main_cst_120 (constant S_ .f32 0x00000000#32),
    binary main_v1220 main_cst_120 main_v1221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_121 (constantI S_ 32 60#32),
    unary main_c_121 main_v1222 (broadcastInDim S1 ![] bcast_S_S1 : (⟨S_, .i32⟩ : BufTy).Contents (Elt F) → (⟨S1, .i32⟩ : BufTy).Contents (Elt F)),
    ternary main_v1203 main_v1222 main_v1221 main_v1223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps60_ok : (stepOps60 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step60_val (V : Valuation τ sig (Elt Ideal)) :
    after (stepOps60 (F := Ideal)) V (no_index (Proc.devRef .tc main_v1215)) = stepH 60 (by decide) (V (Proc.devRef .tc main_arg0)) (V (Proc.devRef .tc main_v3)) (V (Proc.devRef .tc main_arg2)) (V (Proc.devRef .tc main_v1195))
    ∧ after (stepOps60 (F := Ideal)) V (no_index (Proc.devRef .tc main_v1223)) = stepY 60 (by decide) (V (Proc.devRef .tc main_arg3)) (stepH 60 (by decide) (V (Proc.devRef .tc main_arg0)) (V (Proc.devRef .tc main_v3)) (V (Proc.devRef .tc main_arg2)) (V (Proc.devRef .tc main_v1195))) (V (Proc.devRef .tc main_v1203)) := by
  simp only [stepOps60]
  after_results_simp
  first | exact ⟨rfl, rfl⟩ | fail "value"
/-- Step 61 of the loop: operations 1349 … 1370 of the program. -/
abbrev stepOps61 : List (HloOp τ sig (Elt F)) :=
  [ unary main_v3 main_v1224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1215 main_v1224 main_v1225 (mulf : (⟨S4x256x16, .f32⟩ : BufTy).Contents (Elt F) → (⟨S4x256x16, .f32⟩ : BufTy).Contents (Elt F) → (⟨S4x256x16, .f32⟩ : BufTy).Contents (Elt F)),
    unary main_arg0 main_v1226 ((extractStridedSlice S4x1x256 ![0, 61, 0] · slices_S4x512x256_S4x1x256_0_61_0) : (⟨S4x512x256, .f32⟩ : BufTy).Contents (Elt F) → (⟨S4x1x256, .f32⟩ : BufTy).Contents (Elt F)),
    reshape main_v1226 main_v1227 rfl shapeCasts_S4x1x256_S4x256,
    unary main_v1227 main_v1228 (broadcastInDim S4x256x1 ![0, 1] bcast_S4x256_S4x256x1_0_1 : (⟨S4x256, .f32⟩ : BufTy).Contents (Elt F) → (⟨S4x256x1, .f32⟩ : BufTy).Contents (Elt F)),
    unary main_arg2 main_v1229 ((extractStridedSlice S4x1x16 ![0, 61, 0] · slices_S4x512x16_S4x1x16_0_61_0) : (⟨S4x512x16, .f32⟩ : BufTy).Contents (Elt F) → (⟨S4x1x16, .f32⟩ : BufTy).Contents (Elt F)),
    reshape main_v1229 main_v1230 rfl shapeCasts_S4x1x16_S4x16,
    unary main_v1230 main_v1231 (broadcastInDim S4x1x16 ![0, 2] bcast_S4x16_S4x1x16_0_2 : (⟨S4x16, .f32⟩ : BufTy).Contents (Elt F) → (⟨S4x1x16, .f32⟩ : BufTy).Contents (Elt F)),
    unary main_v1228 main_v1232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1231 main_v1233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1232 main_v1233 main_v1234 (mulf : (⟨S4x256x16, .f32⟩ : BufTy).Contents (Elt F) → (⟨S4x256x16, .f32⟩ : BufTy).Contents (Elt F) → (⟨S4x256x16, .f32⟩ : BufTy).Contents (Elt F)),
    binary main_v1225 main_v1234 main_v1235 (addf : (⟨S4x256x16, .f32⟩ : BufTy).Contents (Elt F) → (⟨S4x256x16, .f32⟩ : BufTy).Contents (Elt F) → (⟨S4x256x16, .f32⟩ : BufTy).Contents (Elt F)),
    unary main_arg3 main_v1236 ((extractStridedSlice S4x1x16 ![0, 61, 0] · slices_S4x512x16_S4x1x16_0_61_0) : (⟨S4x512x16, .f32⟩ : BufTy).Contents (Elt F) → (⟨S4x1x16, .f32⟩ : BufTy).Contents (Elt F)),
    reshape main_v1236 main_v1237 rfl shapeCasts_S4x1x16_S4x16,
    unary main_v1237 main_v1238 (broadcastInDim S4x1x16 ![0, 2] bcast_S4x16_S4x1x16_0_2 : (⟨S4x16, .f32⟩ : BufTy).Contents (Elt F) → (⟨S4x1x16, .f32⟩ : BufTy).Contents (Elt F)),
    unary main_v1238 main_v1239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1235 main_v1239 main_v1240 (mulf : (⟨S4x256x16, .f32⟩ : BufTy).Contents (Elt F) → (⟨S4x256x16, .f32⟩ : BufTy).Contents (Elt F) → (⟨S4x256x16, .f32⟩ : BufTy).Contents (Elt F)),
    nullary main_cst_122 (constant S_ .f32 0x00000000#32),
    binary main_v1240 main_cst_122 main_v1241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_123 (constantI S_ 32 61#32),
    unary main_c_123 main_v1242 (broadcastInDim S1 ![] bcast_S_S1 : (⟨S_, .i32⟩ : BufTy).Contents (Elt F) → (⟨S1, .i32⟩ : BufTy).Contents (Elt F)),
    ternary main_v1223 main_v1242 main_v1241 main_v1243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps61_ok : (stepOps61 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step61_val (V : Valuation τ sig (Elt Ideal)) :
    after (stepOps61 (F := Ideal)) V (no_index (Proc.devRef .tc main_v1235)) = stepH 61 (by decide) (V (Proc.devRef .tc main_arg0)) (V (Proc.devRef .tc main_v3)) (V (Proc.devRef .tc main_arg2)) (V (Proc.devRef .tc main_v1215))
    ∧ after (stepOps61 (F := Ideal)) V (no_index (Proc.devRef .tc main_v1243)) = stepY 61 (by decide) (V (Proc.devRef .tc main_arg3)) (stepH 61 (by decide) (V (Proc.devRef .tc main_arg0)) (V (Proc.devRef .tc main_v3)) (V (Proc.devRef .tc main_arg2)) (V (Proc.devRef .tc main_v1215))) (V (Proc.devRef .tc main_v1223)) := by
  simp only [stepOps61]
  after_results_simp
  first | exact ⟨rfl, rfl⟩ | fail "value"
/-- Step 62 of the loop: operations 1371 … 1392 of the program. -/
abbrev stepOps62 : List (HloOp τ sig (Elt F)) :=
  [ unary main_v3 main_v1244 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1235 main_v1244 main_v1245 (mulf : (⟨S4x256x16, .f32⟩ : BufTy).Contents (Elt F) → (⟨S4x256x16, .f32⟩ : BufTy).Contents (Elt F) → (⟨S4x256x16, .f32⟩ : BufTy).Contents (Elt F)),
    unary main_arg0 main_v1246 ((extractStridedSlice S4x1x256 ![0, 62, 0] · slices_S4x512x256_S4x1x256_0_62_0) : (⟨S4x512x256, .f32⟩ : BufTy).Contents (Elt F) → (⟨S4x1x256, .f32⟩ : BufTy).Contents (Elt F)),
    reshape main_v1246 main_v1247 rfl shapeCasts_S4x1x256_S4x256,
    unary main_v1247 main_v1248 (broadcastInDim S4x256x1 ![0, 1] bcast_S4x256_S4x256x1_0_1 : (⟨S4x256, .f32⟩ : BufTy).Contents (Elt F) → (⟨S4x256x1, .f32⟩ : BufTy).Contents (Elt F)),
    unary main_arg2 main_v1249 ((extractStridedSlice S4x1x16 ![0, 62, 0] · slices_S4x512x16_S4x1x16_0_62_0) : (⟨S4x512x16, .f32⟩ : BufTy).Contents (Elt F) → (⟨S4x1x16, .f32⟩ : BufTy).Contents (Elt F)),
    reshape main_v1249 main_v1250 rfl shapeCasts_S4x1x16_S4x16,
    unary main_v1250 main_v1251 (broadcastInDim S4x1x16 ![0, 2] bcast_S4x16_S4x1x16_0_2 : (⟨S4x16, .f32⟩ : BufTy).Contents (Elt F) → (⟨S4x1x16, .f32⟩ : BufTy).Contents (Elt F)),
    unary main_v1248 main_v1252 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1251 main_v1253 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1252 main_v1253 main_v1254 (mulf : (⟨S4x256x16, .f32⟩ : BufTy).Contents (Elt F) → (⟨S4x256x16, .f32⟩ : BufTy).Contents (Elt F) → (⟨S4x256x16, .f32⟩ : BufTy).Contents (Elt F)),
    binary main_v1245 main_v1254 main_v1255 (addf : (⟨S4x256x16, .f32⟩ : BufTy).Contents (Elt F) → (⟨S4x256x16, .f32⟩ : BufTy).Contents (Elt F) → (⟨S4x256x16, .f32⟩ : BufTy).Contents (Elt F)),
    unary main_arg3 main_v1256 ((extractStridedSlice S4x1x16 ![0, 62, 0] · slices_S4x512x16_S4x1x16_0_62_0) : (⟨S4x512x16, .f32⟩ : BufTy).Contents (Elt F) → (⟨S4x1x16, .f32⟩ : BufTy).Contents (Elt F)),
    reshape main_v1256 main_v1257 rfl shapeCasts_S4x1x16_S4x16,
    unary main_v1257 main_v1258 (broadcastInDim S4x1x16 ![0, 2] bcast_S4x16_S4x1x16_0_2 : (⟨S4x16, .f32⟩ : BufTy).Contents (Elt F) → (⟨S4x1x16, .f32⟩ : BufTy).Contents (Elt F)),
    unary main_v1258 main_v1259 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1255 main_v1259 main_v1260 (mulf : (⟨S4x256x16, .f32⟩ : BufTy).Contents (Elt F) → (⟨S4x256x16, .f32⟩ : BufTy).Contents (Elt F) → (⟨S4x256x16, .f32⟩ : BufTy).Contents (Elt F)),
    nullary main_cst_124 (constant S_ .f32 0x00000000#32),
    binary main_v1260 main_cst_124 main_v1261 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_125 (constantI S_ 32 62#32),
    unary main_c_125 main_v1262 (broadcastInDim S1 ![] bcast_S_S1 : (⟨S_, .i32⟩ : BufTy).Contents (Elt F) → (⟨S1, .i32⟩ : BufTy).Contents (Elt F)),
    ternary main_v1243 main_v1262 main_v1261 main_v1263 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps62_ok : (stepOps62 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step62_val (V : Valuation τ sig (Elt Ideal)) :
    after (stepOps62 (F := Ideal)) V (no_index (Proc.devRef .tc main_v1255)) = stepH 62 (by decide) (V (Proc.devRef .tc main_arg0)) (V (Proc.devRef .tc main_v3)) (V (Proc.devRef .tc main_arg2)) (V (Proc.devRef .tc main_v1235))
    ∧ after (stepOps62 (F := Ideal)) V (no_index (Proc.devRef .tc main_v1263)) = stepY 62 (by decide) (V (Proc.devRef .tc main_arg3)) (stepH 62 (by decide) (V (Proc.devRef .tc main_arg0)) (V (Proc.devRef .tc main_v3)) (V (Proc.devRef .tc main_arg2)) (V (Proc.devRef .tc main_v1235))) (V (Proc.devRef .tc main_v1243)) := by
  simp only [stepOps62]
  after_results_simp
  first | exact ⟨rfl, rfl⟩ | fail "value"
/-- Step 63 of the loop: operations 1393 … 1414 of the program. -/
abbrev stepOps63 : List (HloOp τ sig (Elt F)) :=
  [ unary main_v3 main_v1264 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1255 main_v1264 main_v1265 (mulf : (⟨S4x256x16, .f32⟩ : BufTy).Contents (Elt F) → (⟨S4x256x16, .f32⟩ : BufTy).Contents (Elt F) → (⟨S4x256x16, .f32⟩ : BufTy).Contents (Elt F)),
    unary main_arg0 main_v1266 ((extractStridedSlice S4x1x256 ![0, 63, 0] · slices_S4x512x256_S4x1x256_0_63_0) : (⟨S4x512x256, .f32⟩ : BufTy).Contents (Elt F) → (⟨S4x1x256, .f32⟩ : BufTy).Contents (Elt F)),
    reshape main_v1266 main_v1267 rfl shapeCasts_S4x1x256_S4x256,
    unary main_v1267 main_v1268 (broadcastInDim S4x256x1 ![0, 1] bcast_S4x256_S4x256x1_0_1 : (⟨S4x256, .f32⟩ : BufTy).Contents (Elt F) → (⟨S4x256x1, .f32⟩ : BufTy).Contents (Elt F)),
    unary main_arg2 main_v1269 ((extractStridedSlice S4x1x16 ![0, 63, 0] · slices_S4x512x16_S4x1x16_0_63_0) : (⟨S4x512x16, .f32⟩ : BufTy).Contents (Elt F) → (⟨S4x1x16, .f32⟩ : BufTy).Contents (Elt F)),
    reshape main_v1269 main_v1270 rfl shapeCasts_S4x1x16_S4x16,
    unary main_v1270 main_v1271 (broadcastInDim S4x1x16 ![0, 2] bcast_S4x16_S4x1x16_0_2 : (⟨S4x16, .f32⟩ : BufTy).Contents (Elt F) → (⟨S4x1x16, .f32⟩ : BufTy).Contents (Elt F)),
    unary main_v1268 main_v1272 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1271 main_v1273 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1272 main_v1273 main_v1274 (mulf : (⟨S4x256x16, .f32⟩ : BufTy).Contents (Elt F) → (⟨S4x256x16, .f32⟩ : BufTy).Contents (Elt F) → (⟨S4x256x16, .f32⟩ : BufTy).Contents (Elt F)),
    binary main_v1265 main_v1274 main_v1275 (addf : (⟨S4x256x16, .f32⟩ : BufTy).Contents (Elt F) → (⟨S4x256x16, .f32⟩ : BufTy).Contents (Elt F) → (⟨S4x256x16, .f32⟩ : BufTy).Contents (Elt F)),
    unary main_arg3 main_v1276 ((extractStridedSlice S4x1x16 ![0, 63, 0] · slices_S4x512x16_S4x1x16_0_63_0) : (⟨S4x512x16, .f32⟩ : BufTy).Contents (Elt F) → (⟨S4x1x16, .f32⟩ : BufTy).Contents (Elt F)),
    reshape main_v1276 main_v1277 rfl shapeCasts_S4x1x16_S4x16,
    unary main_v1277 main_v1278 (broadcastInDim S4x1x16 ![0, 2] bcast_S4x16_S4x1x16_0_2 : (⟨S4x16, .f32⟩ : BufTy).Contents (Elt F) → (⟨S4x1x16, .f32⟩ : BufTy).Contents (Elt F)),
    unary main_v1278 main_v1279 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1275 main_v1279 main_v1280 (mulf : (⟨S4x256x16, .f32⟩ : BufTy).Contents (Elt F) → (⟨S4x256x16, .f32⟩ : BufTy).Contents (Elt F) → (⟨S4x256x16, .f32⟩ : BufTy).Contents (Elt F)),
    nullary main_cst_126 (constant S_ .f32 0x00000000#32),
    binary main_v1280 main_cst_126 main_v1281 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_127 (constantI S_ 32 63#32),
    unary main_c_127 main_v1282 (broadcastInDim S1 ![] bcast_S_S1 : (⟨S_, .i32⟩ : BufTy).Contents (Elt F) → (⟨S1, .i32⟩ : BufTy).Contents (Elt F)),
    ternary main_v1263 main_v1282 main_v1281 main_v1283 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps63_ok : (stepOps63 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step63_val (V : Valuation τ sig (Elt Ideal)) :
    after (stepOps63 (F := Ideal)) V (no_index (Proc.devRef .tc main_v1275)) = stepH 63 (by decide) (V (Proc.devRef .tc main_arg0)) (V (Proc.devRef .tc main_v3)) (V (Proc.devRef .tc main_arg2)) (V (Proc.devRef .tc main_v1255))
    ∧ after (stepOps63 (F := Ideal)) V (no_index (Proc.devRef .tc main_v1283)) = stepY 63 (by decide) (V (Proc.devRef .tc main_arg3)) (stepH 63 (by decide) (V (Proc.devRef .tc main_arg0)) (V (Proc.devRef .tc main_v3)) (V (Proc.devRef .tc main_arg2)) (V (Proc.devRef .tc main_v1255))) (V (Proc.devRef .tc main_v1263)) := by
  simp only [stepOps63]
  after_results_simp
  first | exact ⟨rfl, rfl⟩ | fail "value"

end Cert.ReferenceIdeal.RefRun

end
-- ==== Proof.RefTableStep04.lean ====
/-
  Steps 64 … 79 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 64 of the loop: operations 1415 … 1436 of the program. -/
abbrev stepOps64 : List (HloOp τ sig (Elt F)) :=
  [ unary main_v3 main_v1284 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1275 main_v1284 main_v1285 (mulf : (⟨S4x256x16, .f32⟩ : BufTy).Contents (Elt F) → (⟨S4x256x16, .f32⟩ : BufTy).Contents (Elt F) → (⟨S4x256x16, .f32⟩ : BufTy).Contents (Elt F)),
    unary main_arg0 main_v1286 ((extractStridedSlice S4x1x256 ![0, 64, 0] · slices_S4x512x256_S4x1x256_0_64_0) : (⟨S4x512x256, .f32⟩ : BufTy).Contents (Elt F) → (⟨S4x1x256, .f32⟩ : BufTy).Contents (Elt F)),
    reshape main_v1286 main_v1287 rfl shapeCasts_S4x1x256_S4x256,
    unary main_v1287 main_v1288 (broadcastInDim S4x256x1 ![0, 1] bcast_S4x256_S4x256x1_0_1 : (⟨S4x256, .f32⟩ : BufTy).Contents (Elt F) → (⟨S4x256x1, .f32⟩ : BufTy).Contents (Elt F)),
    unary main_arg2 main_v1289 ((extractStridedSlice S4x1x16 ![0, 64, 0] · slices_S4x512x16_S4x1x16_0_64_0) : (⟨S4x512x16, .f32⟩ : BufTy).Contents (Elt F) → (⟨S4x1x16, .f32⟩ : BufTy).Contents (Elt F)),
    reshape main_v1289 main_v1290 rfl shapeCasts_S4x1x16_S4x16,
    unary main_v1290 main_v1291 (broadcastInDim S4x1x16 ![0, 2] bcast_S4x16_S4x1x16_0_2 : (⟨S4x16, .f32⟩ : BufTy).Contents (Elt F) → (⟨S4x1x16, .f32⟩ : BufTy).Contents (Elt F)),
    unary main_v1288 main_v1292 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1291 main_v1293 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1292 main_v1293 main_v1294 (mulf : (⟨S4x256x16, .f32⟩ : BufTy).Contents (Elt F) → (⟨S4x256x16, .f32⟩ : BufTy).Contents (Elt F) → (⟨S4x256x16, .f32⟩ : BufTy).Contents (Elt F)),
    binary main_v1285 main_v1294 main_v1295 (addf : (⟨S4x256x16, .f32⟩ : BufTy).Contents (Elt F) → (⟨S4x256x16, .f32⟩ : BufTy).Contents (Elt F) → (⟨S4x256x16, .f32⟩ : BufTy).Contents (Elt F)),
    unary main_arg3 main_v1296 ((extractStridedSlice S4x1x16 ![0, 64, 0] · slices_S4x512x16_S4x1x16_0_64_0) : (⟨S4x512x16, .f32⟩ : BufTy).Contents (Elt F) → (⟨S4x1x16, .f32⟩ : BufTy).Contents (Elt F)),
    reshape main_v1296 main_v1297 rfl shapeCasts_S4x1x16_S4x16,
    unary main_v1297 main_v1298 (broadcastInDim S4x1x16 ![0, 2] bcast_S4x16_S4x1x16_0_2 : (⟨S4x16, .f32⟩ : BufTy).Contents (Elt F) → (⟨S4x1x16, .f32⟩ : BufTy).Contents (Elt F)),
    unary main_v1298 main_v1299 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1295 main_v1299 main_v1300 (mulf : (⟨S4x256x16, .f32⟩ : BufTy).Contents (Elt F) → (⟨S4x256x16, .f32⟩ : BufTy).Contents (Elt F) → (⟨S4x256x16, .f32⟩ : BufTy).Contents (Elt F)),
    nullary main_cst_128 (constant S_ .f32 0x00000000#32),
    binary main_v1300 main_cst_128 main_v1301 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_129 (constantI S_ 32 64#32),
    unary main_c_129 main_v1302 (broadcastInDim S1 ![] bcast_S_S1 : (⟨S_, .i32⟩ : BufTy).Contents (Elt F) → (⟨S1, .i32⟩ : BufTy).Contents (Elt F)),
    ternary main_v1283 main_v1302 main_v1301 main_v1303 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps64_ok : (stepOps64 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step64_val (V : Valuation τ sig (Elt Ideal)) :
    after (stepOps64 (F := Ideal)) V (no_index (Proc.devRef .tc main_v1295)) = stepH 64 (by decide) (V (Proc.devRef .tc main_arg0)) (V (Proc.devRef .tc main_v3)) (V (Proc.devRef .tc main_arg2)) (V (Proc.devRef .tc main_v1275))
    ∧ after (stepOps64 (F := Ideal)) V (no_index (Proc.devRef .tc main_v1303)) = stepY 64 (by decide) (V (Proc.devRef .tc main_arg3)) (stepH 64 (by decide) (V (Proc.devRef .tc main_arg0)) (V (Proc.devRef .tc main_v3)) (V (Proc.devRef .tc main_arg2)) (V (Proc.devRef .tc main_v1275))) (V (Proc.devRef .tc main_v1283)) := by
  simp only [stepOps64]
  after_results_simp
  first | exact ⟨rfl, rfl⟩ | fail "value"
/-- Step 65 of the loop: operations 1437 … 1458 of the program. -/
abbrev stepOps65 : List (HloOp τ sig (Elt F)) :=
  [ unary main_v3 main_v1304 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1295 main_v1304 main_v1305 (mulf : (⟨S4x256x16, .f32⟩ : BufTy).Contents (Elt F) → (⟨S4x256x16, .f32⟩ : BufTy).Contents (Elt F) → (⟨S4x256x16, .f32⟩ : BufTy).Contents (Elt F)),
    unary main_arg0 main_v1306 ((extractStridedSlice S4x1x256 ![0, 65, 0] · slices_S4x512x256_S4x1x256_0_65_0) : (⟨S4x512x256, .f32⟩ : BufTy).Contents (Elt F) → (⟨S4x1x256, .f32⟩ : BufTy).Contents (Elt F)),
    reshape main_v1306 main_v1307 rfl shapeCasts_S4x1x256_S4x256,
    unary main_v1307 main_v1308 (broadcastInDim S4x256x1 ![0, 1] bcast_S4x256_S4x256x1_0_1 : (⟨S4x256, .f32⟩ : BufTy).Contents (Elt F) → (⟨S4x256x1, .f32⟩ : BufTy).Contents (Elt F)),
    unary main_arg2 main_v1309 ((extractStridedSlice S4x1x16 ![0, 65, 0] · slices_S4x512x16_S4x1x16_0_65_0) : (⟨S4x512x16, .f32⟩ : BufTy).Contents (Elt F) → (⟨S4x1x16, .f32⟩ : BufTy).Contents (Elt F)),
    reshape main_v1309 main_v1310 rfl shapeCasts_S4x1x16_S4x16,
    unary main_v1310 main_v1311 (broadcastInDim S4x1x16 ![0, 2] bcast_S4x16_S4x1x16_0_2 : (⟨S4x16, .f32⟩ : BufTy).Contents (Elt F) → (⟨S4x1x16, .f32⟩ : BufTy).Contents (Elt F)),
    unary main_v1308 main_v1312 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1311 main_v1313 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1312 main_v1313 main_v1314 (mulf : (⟨S4x256x16, .f32⟩ : BufTy).Contents (Elt F) → (⟨S4x256x16, .f32⟩ : BufTy).Contents (Elt F) → (⟨S4x256x16, .f32⟩ : BufTy).Contents (Elt F)),
    binary main_v1305 main_v1314 main_v1315 (addf : (⟨S4x256x16, .f32⟩ : BufTy).Contents (Elt F) → (⟨S4x256x16, .f32⟩ : BufTy).Contents (Elt F) → (⟨S4x256x16, .f32⟩ : BufTy).Contents (Elt F)),
    unary main_arg3 main_v1316 ((extractStridedSlice S4x1x16 ![0, 65, 0] · slices_S4x512x16_S4x1x16_0_65_0) : (⟨S4x512x16, .f32⟩ : BufTy).Contents (Elt F) → (⟨S4x1x16, .f32⟩ : BufTy).Contents (Elt F)),
    reshape main_v1316 main_v1317 rfl shapeCasts_S4x1x16_S4x16,
    unary main_v1317 main_v1318 (broadcastInDim S4x1x16 ![0, 2] bcast_S4x16_S4x1x16_0_2 : (⟨S4x16, .f32⟩ : BufTy).Contents (Elt F) → (⟨S4x1x16, .f32⟩ : BufTy).Contents (Elt F)),
    unary main_v1318 main_v1319 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1315 main_v1319 main_v1320 (mulf : (⟨S4x256x16, .f32⟩ : BufTy).Contents (Elt F) → (⟨S4x256x16, .f32⟩ : BufTy).Contents (Elt F) → (⟨S4x256x16, .f32⟩ : BufTy).Contents (Elt F)),
    nullary main_cst_130 (constant S_ .f32 0x00000000#32),
    binary main_v1320 main_cst_130 main_v1321 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_131 (constantI S_ 32 65#32),
    unary main_c_131 main_v1322 (broadcastInDim S1 ![] bcast_S_S1 : (⟨S_, .i32⟩ : BufTy).Contents (Elt F) → (⟨S1, .i32⟩ : BufTy).Contents (Elt F)),
    ternary main_v1303 main_v1322 main_v1321 main_v1323 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps65_ok : (stepOps65 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step65_val (V : Valuation τ sig (Elt Ideal)) :
    after (stepOps65 (F := Ideal)) V (no_index (Proc.devRef .tc main_v1315)) = stepH 65 (by decide) (V (Proc.devRef .tc main_arg0)) (V (Proc.devRef .tc main_v3)) (V (Proc.devRef .tc main_arg2)) (V (Proc.devRef .tc main_v1295))
    ∧ after (stepOps65 (F := Ideal)) V (no_index (Proc.devRef .tc main_v1323)) = stepY 65 (by decide) (V (Proc.devRef .tc main_arg3)) (stepH 65 (by decide) (V (Proc.devRef .tc main_arg0)) (V (Proc.devRef .tc main_v3)) (V (Proc.devRef .tc main_arg2)) (V (Proc.devRef .tc main_v1295))) (V (Proc.devRef .tc main_v1303)) := by
  simp only [stepOps65]
  after_results_simp
  first | exact ⟨rfl, rfl⟩ | fail "value"
/-- Step 66 of the loop: operations 1459 … 1480 of the program. -/
abbrev stepOps66 : List (HloOp τ sig (Elt F)) :=
  [ unary main_v3 main_v1324 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1315 main_v1324 main_v1325 (mulf : (⟨S4x256x16, .f32⟩ : BufTy).Contents (Elt F) → (⟨S4x256x16, .f32⟩ : BufTy).Contents (Elt F) → (⟨S4x256x16, .f32⟩ : BufTy).Contents (Elt F)),
    unary main_arg0 main_v1326 ((extractStridedSlice S4x1x256 ![0, 66, 0] · slices_S4x512x256_S4x1x256_0_66_0) : (⟨S4x512x256, .f32⟩ : BufTy).Contents (Elt F) → (⟨S4x1x256, .f32⟩ : BufTy).Contents (Elt F)),
    reshape main_v1326 main_v1327 rfl shapeCasts_S4x1x256_S4x256,
    unary main_v1327 main_v1328 (broadcastInDim S4x256x1 ![0, 1] bcast_S4x256_S4x256x1_0_1 : (⟨S4x256, .f32⟩ : BufTy).Contents (Elt F) → (⟨S4x256x1, .f32⟩ : BufTy).Contents (Elt F)),
    unary main_arg2 main_v1329 ((extractStridedSlice S4x1x16 ![0, 66, 0] · slices_S4x512x16_S4x1x16_0_66_0) : (⟨S4x512x16, .f32⟩ : BufTy).Contents (Elt F) → (⟨S4x1x16, .f32⟩ : BufTy).Contents (Elt F)),
    reshape main_v1329 main_v1330 rfl shapeCasts_S4x1x16_S4x16,
    unary main_v1330 main_v1331 (broadcastInDim S4x1x16 ![0, 2] bcast_S4x16_S4x1x16_0_2 : (⟨S4x16, .f32⟩ : BufTy).Contents (Elt F) → (⟨S4x1x16, .f32⟩ : BufTy).Contents (Elt F)),
    unary main_v1328 main_v1332 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1331 main_v1333 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1332 main_v1333 main_v1334 (mulf : (⟨S4x256x16, .f32⟩ : BufTy).Contents (Elt F) → (⟨S4x256x16, .f32⟩ : BufTy).Contents (Elt F) → (⟨S4x256x16, .f32⟩ : BufTy).Contents (Elt F)),
    binary main_v1325 main_v1334 main_v1335 (addf : (⟨S4x256x16, .f32⟩ : BufTy).Contents (Elt F) → (⟨S4x256x16, .f32⟩ : BufTy).Contents (Elt F) → (⟨S4x256x16, .f32⟩ : BufTy).Contents (Elt F)),
    unary main_arg3 main_v1336 ((extractStridedSlice S4x1x16 ![0, 66, 0] · slices_S4x512x16_S4x1x16_0_66_0) : (⟨S4x512x16, .f32⟩ : BufTy).Contents (Elt F) → (⟨S4x1x16, .f32⟩ : BufTy).Contents (Elt F)),
    reshape main_v1336 main_v1337 rfl shapeCasts_S4x1x16_S4x16,
    unary main_v1337 main_v1338 (broadcastInDim S4x1x16 ![0, 2] bcast_S4x16_S4x1x16_0_2 : (⟨S4x16, .f32⟩ : BufTy).Contents (Elt F) → (⟨S4x1x16, .f32⟩ : BufTy).Contents (Elt F)),
    unary main_v1338 main_v1339 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1335 main_v1339 main_v1340 (mulf : (⟨S4x256x16, .f32⟩ : BufTy).Contents (Elt F) → (⟨S4x256x16, .f32⟩ : BufTy).Contents (Elt F) → (⟨S4x256x16, .f32⟩ : BufTy).Contents (Elt F)),
    nullary main_cst_132 (constant S_ .f32 0x00000000#32),
    binary main_v1340 main_cst_132 main_v1341 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_133 (constantI S_ 32 66#32),
    unary main_c_133 main_v1342 (broadcastInDim S1 ![] bcast_S_S1 : (⟨S_, .i32⟩ : BufTy).Contents (Elt F) → (⟨S1, .i32⟩ : BufTy).Contents (Elt F)),
    ternary main_v1323 main_v1342 main_v1341 main_v1343 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps66_ok : (stepOps66 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step66_val (V : Valuation τ sig (Elt Ideal)) :
    after (stepOps66 (F := Ideal)) V (no_index (Proc.devRef .tc main_v1335)) = stepH 66 (by decide) (V (Proc.devRef .tc main_arg0)) (V (Proc.devRef .tc main_v3)) (V (Proc.devRef .tc main_arg2)) (V (Proc.devRef .tc main_v1315))
    ∧ after (stepOps66 (F := Ideal)) V (no_index (Proc.devRef .tc main_v1343)) = stepY 66 (by decide) (V (Proc.devRef .tc main_arg3)) (stepH 66 (by decide) (V (Proc.devRef .tc main_arg0)) (V (Proc.devRef .tc main_v3)) (V (Proc.devRef .tc main_arg2)) (V (Proc.devRef .tc main_v1315))) (V (Proc.devRef .tc main_v1323)) := by
  simp only [stepOps66]
  after_results_simp
  first | exact ⟨rfl, rfl⟩ | fail "value"
/-- Step 67 of the loop: operations 1481 … 1502 of the program. -/
abbrev stepOps67 : List (HloOp τ sig (Elt F)) :=
  [ unary main_v3 main_v1344 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1335 main_v1344 main_v1345 (mulf : (⟨S4x256x16, .f32⟩ : BufTy).Contents (Elt F) → (⟨S4x256x16, .f32⟩ : BufTy).Contents (Elt F) → (⟨S4x256x16, .f32⟩ : BufTy).Contents (Elt F)),
    unary main_arg0 main_v1346 ((extractStridedSlice S4x1x256 ![0, 67, 0] · slices_S4x512x256_S4x1x256_0_67_0) : (⟨S4x512x256, .f32⟩ : BufTy).Contents (Elt F) → (⟨S4x1x256, .f32⟩ : BufTy).Contents (Elt F)),
    reshape main_v1346 main_v1347 rfl shapeCasts_S4x1x256_S4x256,
    unary main_v1347 main_v1348 (broadcastInDim S4x256x1 ![0, 1] bcast_S4x256_S4x256x1_0_1 : (⟨S4x256, .f32⟩ : BufTy).Contents (Elt F) → (⟨S4x256x1, .f32⟩ : BufTy).Contents (Elt F)),
    unary main_arg2 main_v1349 ((extractStridedSlice S4x1x16 ![0, 67, 0] · slices_S4x512x16_S4x1x16_0_67_0) : (⟨S4x512x16, .f32⟩ : BufTy).Contents (Elt F) → (⟨S4x1x16, .f32⟩ : BufTy).Contents (Elt F)),
    reshape main_v1349 main_v1350 rfl shapeCasts_S4x1x16_S4x16,
    unary main_v1350 main_v1351 (broadcastInDim S4x1x16 ![0, 2] bcast_S4x16_S4x1x16_0_2 : (⟨S4x16, .f32⟩ : BufTy).Contents (Elt F) → (⟨S4x1x16, .f32⟩ : BufTy).Contents (Elt F)),
    unary main_v1348 main_v1352 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1351 main_v1353 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1352 main_v1353 main_v1354 (mulf : (⟨S4x256x16, .f32⟩ : BufTy).Contents (Elt F) → (⟨S4x256x16, .f32⟩ : BufTy).Contents (Elt F) → (⟨S4x256x16, .f32⟩ : BufTy).Contents (Elt F)),
    binary main_v1345 main_v1354 main_v1355 (addf : (⟨S4x256x16, .f32⟩ : BufTy).Contents (Elt F) → (⟨S4x256x16, .f32⟩ : BufTy).Contents (Elt F) → (⟨S4x256x16, .f32⟩ : BufTy).Contents (Elt F)),
    unary main_arg3 main_v1356 ((extractStridedSlice S4x1x16 ![0, 67, 0] · slices_S4x512x16_S4x1x16_0_67_0) : (⟨S4x512x16, .f32⟩ : BufTy).Contents (Elt F) → (⟨S4x1x16, .f32⟩ : BufTy).Contents (Elt F)),
    reshape main_v1356 main_v1357 rfl shapeCasts_S4x1x16_S4x16,
    unary main_v1357 main_v1358 (broadcastInDim S4x1x16 ![0, 2] bcast_S4x16_S4x1x16_0_2 : (⟨S4x16, .f32⟩ : BufTy).Contents (Elt F) → (⟨S4x1x16, .f32⟩ : BufTy).Contents (Elt F)),
    unary main_v1358 main_v1359 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1355 main_v1359 main_v1360 (mulf : (⟨S4x256x16, .f32⟩ : BufTy).Contents (Elt F) → (⟨S4x256x16, .f32⟩ : BufTy).Contents (Elt F) → (⟨S4x256x16, .f32⟩ : BufTy).Contents (Elt F)),
    nullary main_cst_134 (constant S_ .f32 0x00000000#32),
    binary main_v1360 main_cst_134 main_v1361 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_135 (constantI S_ 32 67#32),
    unary main_c_135 main_v1362 (broadcastInDim S1 ![] bcast_S_S1 : (⟨S_, .i32⟩ : BufTy).Contents (Elt F) → (⟨S1, .i32⟩ : BufTy).Contents (Elt F)),
    ternary main_v1343 main_v1362 main_v1361 main_v1363 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps67_ok : (stepOps67 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step67_val (V : Valuation τ sig (Elt Ideal)) :
    after (stepOps67 (F := Ideal)) V (no_index (Proc.devRef .tc main_v1355)) = stepH 67 (by decide) (V (Proc.devRef .tc main_arg0)) (V (Proc.devRef .tc main_v3)) (V (Proc.devRef .tc main_arg2)) (V (Proc.devRef .tc main_v1335))
    ∧ after (stepOps67 (F := Ideal)) V (no_index (Proc.devRef .tc main_v1363)) = stepY 67 (by decide) (V (Proc.devRef .tc main_arg3)) (stepH 67 (by decide) (V (Proc.devRef .tc main_arg0)) (V (Proc.devRef .tc main_v3)) (V (Proc.devRef .tc main_arg2)) (V (Proc.devRef .tc main_v1335))) (V (Proc.devRef .tc main_v1343)) := by
  simp only [stepOps67]
  after_results_simp
  first | exact ⟨rfl, rfl⟩ | fail "value"
/-- Step 68 of the loop: operations 1503 … 1524 of the program. -/
abbrev stepOps68 : List (HloOp τ sig (Elt F)) :=
  [ unary main_v3 main_v1364 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1355 main_v1364 main_v1365 (mulf : (⟨S4x256x16, .f32⟩ : BufTy).Contents (Elt F) → (⟨S4x256x16, .f32⟩ : BufTy).Contents (Elt F) → (⟨S4x256x16, .f32⟩ : BufTy).Contents (Elt F)),
    unary main_arg0 main_v1366 ((extractStridedSlice S4x1x256 ![0, 68, 0] · slices_S4x512x256_S4x1x256_0_68_0) : (⟨S4x512x256, .f32⟩ : BufTy).Contents (Elt F) → (⟨S4x1x256, .f32⟩ : BufTy).Contents (Elt F)),
    reshape main_v1366 main_v1367 rfl shapeCasts_S4x1x256_S4x256,
    unary main_v1367 main_v1368 (broadcastInDim S4x256x1 ![0, 1] bcast_S4x256_S4x256x1_0_1 : (⟨S4x256, .f32⟩ : BufTy).Contents (Elt F) → (⟨S4x256x1, .f32⟩ : BufTy).Contents (Elt F)),
    unary main_arg2 main_v1369 ((extractStridedSlice S4x1x16 ![0, 68, 0] · slices_S4x512x16_S4x1x16_0_68_0) : (⟨S4x512x16, .f32⟩ : BufTy).Contents (Elt F) → (⟨S4x1x16, .f32⟩ : BufTy).Contents (Elt F)),
    reshape main_v1369 main_v1370 rfl shapeCasts_S4x1x16_S4x16,
    unary main_v1370 main_v1371 (broadcastInDim S4x1x16 ![0, 2] bcast_S4x16_S4x1x16_0_2 : (⟨S4x16, .f32⟩ : BufTy).Contents (Elt F) → (⟨S4x1x16, .f32⟩ : BufTy).Contents (Elt F)),
    unary main_v1368 main_v1372 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1371 main_v1373 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1372 main_v1373 main_v1374 (mulf : (⟨S4x256x16, .f32⟩ : BufTy).Contents (Elt F) → (⟨S4x256x16, .f32⟩ : BufTy).Contents (Elt F) → (⟨S4x256x16, .f32⟩ : BufTy).Contents (Elt F)),
    binary main_v1365 main_v1374 main_v1375 (addf : (⟨S4x256x16, .f32⟩ : BufTy).Contents (Elt F) → (⟨S4x256x16, .f32⟩ : BufTy).Contents (Elt F) → (⟨S4x256x16, .f32⟩ : BufTy).Contents (Elt F)),
    unary main_arg3 main_v1376 ((extractStridedSlice S4x1x16 ![0, 68, 0] · slices_S4x512x16_S4x1x16_0_68_0) : (⟨S4x512x16, .f32⟩ : BufTy).Contents (Elt F) → (⟨S4x1x16, .f32⟩ : BufTy).Contents (Elt F)),
    reshape main_v1376 main_v1377 rfl shapeCasts_S4x1x16_S4x16,
    unary main_v1377 main_v1378 (broadcastInDim S4x1x16 ![0, 2] bcast_S4x16_S4x1x16_0_2 : (⟨S4x16, .f32⟩ : BufTy).Contents (Elt F) → (⟨S4x1x16, .f32⟩ : BufTy).Contents (Elt F)),
    unary main_v1378 main_v1379 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1375 main_v1379 main_v1380 (mulf : (⟨S4x256x16, .f32⟩ : BufTy).Contents (Elt F) → (⟨S4x256x16, .f32⟩ : BufTy).Contents (Elt F) → (⟨S4x256x16, .f32⟩ : BufTy).Contents (Elt F)),
    nullary main_cst_136 (constant S_ .f32 0x00000000#32),
    binary main_v1380 main_cst_136 main_v1381 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_137 (constantI S_ 32 68#32),
    unary main_c_137 main_v1382 (broadcastInDim S1 ![] bcast_S_S1 : (⟨S_, .i32⟩ : BufTy).Contents (Elt F) → (⟨S1, .i32⟩ : BufTy).Contents (Elt F)),
    ternary main_v1363 main_v1382 main_v1381 main_v1383 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps68_ok : (stepOps68 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step68_val (V : Valuation τ sig (Elt Ideal)) :
    after (stepOps68 (F := Ideal)) V (no_index (Proc.devRef .tc main_v1375)) = stepH 68 (by decide) (V (Proc.devRef .tc main_arg0)) (V (Proc.devRef .tc main_v3)) (V (Proc.devRef .tc main_arg2)) (V (Proc.devRef .tc main_v1355))
    ∧ after (stepOps68 (F := Ideal)) V (no_index (Proc.devRef .tc main_v1383)) = stepY 68 (by decide) (V (Proc.devRef .tc main_arg3)) (stepH 68 (by decide) (V (Proc.devRef .tc main_arg0)) (V (Proc.devRef .tc main_v3)) (V (Proc.devRef .tc main_arg2)) (V (Proc.devRef .tc main_v1355))) (V (Proc.devRef .tc main_v1363)) := by
  simp only [stepOps68]
  after_results_simp
  first | exact ⟨rfl, rfl⟩ | fail "value"
/-- Step 69 of the loop: operations 1525 … 1546 of the program. -/
abbrev stepOps69 : List (HloOp τ sig (Elt F)) :=
  [ unary main_v3 main_v1384 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1375 main_v1384 main_v1385 (mulf : (⟨S4x256x16, .f32⟩ : BufTy).Contents (Elt F) → (⟨S4x256x16, .f32⟩ : BufTy).Contents (Elt F) → (⟨S4x256x16, .f32⟩ : BufTy).Contents (Elt F)),
    unary main_arg0 main_v1386 ((extractStridedSlice S4x1x256 ![0, 69, 0] · slices_S4x512x256_S4x1x256_0_69_0) : (⟨S4x512x256, .f32⟩ : BufTy).Contents (Elt F) → (⟨S4x1x256, .f32⟩ : BufTy).Contents (Elt F)),
    reshape main_v1386 main_v1387 rfl shapeCasts_S4x1x256_S4x256,
    unary main_v1387 main_v1388 (broadcastInDim S4x256x1 ![0, 1] bcast_S4x256_S4x256x1_0_1 : (⟨S4x256, .f32⟩ : BufTy).Contents (Elt F) → (⟨S4x256x1, .f32⟩ : BufTy).Contents (Elt F)),
    unary main_arg2 main_v1389 ((extractStridedSlice S4x1x16 ![0, 69, 0] · slices_S4x512x16_S4x1x16_0_69_0) : (⟨S4x512x16, .f32⟩ : BufTy).Contents (Elt F) → (⟨S4x1x16, .f32⟩ : BufTy).Contents (Elt F)),
    reshape main_v1389 main_v1390 rfl shapeCasts_S4x1x16_S4x16,
    unary main_v1390 main_v1391 (broadcastInDim S4x1x16 ![0, 2] bcast_S4x16_S4x1x16_0_2 : (⟨S4x16, .f32⟩ : BufTy).Contents (Elt F) → (⟨S4x1x16, .f32⟩ : BufTy).Contents (Elt F)),
    unary main_v1388 main_v1392 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1391 main_v1393 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1392 main_v1393 main_v1394 (mulf : (⟨S4x256x16, .f32⟩ : BufTy).Contents (Elt F) → (⟨S4x256x16, .f32⟩ : BufTy).Contents (Elt F) → (⟨S4x256x16, .f32⟩ : BufTy).Contents (Elt F)),
    binary main_v1385 main_v1394 main_v1395 (addf : (⟨S4x256x16, .f32⟩ : BufTy).Contents (Elt F) → (⟨S4x256x16, .f32⟩ : BufTy).Contents (Elt F) → (⟨S4x256x16, .f32⟩ : BufTy).Contents (Elt F)),
    unary main_arg3 main_v1396 ((extractStridedSlice S4x1x16 ![0, 69, 0] · slices_S4x512x16_S4x1x16_0_69_0) : (⟨S4x512x16, .f32⟩ : BufTy).Contents (Elt F) → (⟨S4x1x16, .f32⟩ : BufTy).Contents (Elt F)),
    reshape main_v1396 main_v1397 rfl shapeCasts_S4x1x16_S4x16,
    unary main_v1397 main_v1398 (broadcastInDim S4x1x16 ![0, 2] bcast_S4x16_S4x1x16_0_2 : (⟨S4x16, .f32⟩ : BufTy).Contents (Elt F) → (⟨S4x1x16, .f32⟩ : BufTy).Contents (Elt F)),
    unary main_v1398 main_v1399 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1395 main_v1399 main_v1400 (mulf : (⟨S4x256x16, .f32⟩ : BufTy).Contents (Elt F) → (⟨S4x256x16, .f32⟩ : BufTy).Contents (Elt F) → (⟨S4x256x16, .f32⟩ : BufTy).Contents (Elt F)),
    nullary main_cst_138 (constant S_ .f32 0x00000000#32),
    binary main_v1400 main_cst_138 main_v1401 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_139 (constantI S_ 32 69#32),
    unary main_c_139 main_v1402 (broadcastInDim S1 ![] bcast_S_S1 : (⟨S_, .i32⟩ : BufTy).Contents (Elt F) → (⟨S1, .i32⟩ : BufTy).Contents (Elt F)),
    ternary main_v1383 main_v1402 main_v1401 main_v1403 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps69_ok : (stepOps69 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step69_val (V : Valuation τ sig (Elt Ideal)) :
    after (stepOps69 (F := Ideal)) V (no_index (Proc.devRef .tc main_v1395)) = stepH 69 (by decide) (V (Proc.devRef .tc main_arg0)) (V (Proc.devRef .tc main_v3)) (V (Proc.devRef .tc main_arg2)) (V (Proc.devRef .tc main_v1375))
    ∧ after (stepOps69 (F := Ideal)) V (no_index (Proc.devRef .tc main_v1403)) = stepY 69 (by decide) (V (Proc.devRef .tc main_arg3)) (stepH 69 (by decide) (V (Proc.devRef .tc main_arg0)) (V (Proc.devRef .tc main_v3)) (V (Proc.devRef .tc main_arg2)) (V (Proc.devRef .tc main_v1375))) (V (Proc.devRef .tc main_v1383)) := by
  simp only [stepOps69]
  after_results_simp
  first | exact ⟨rfl, rfl⟩ | fail "value"
/-- Step 70 of the loop: operations 1547 … 1568 of the program. -/
abbrev stepOps70 : List (HloOp τ sig (Elt F)) :=
  [ unary main_v3 main_v1404 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1395 main_v1404 main_v1405 (mulf : (⟨S4x256x16, .f32⟩ : BufTy).Contents (Elt F) → (⟨S4x256x16, .f32⟩ : BufTy).Contents (Elt F) → (⟨S4x256x16, .f32⟩ : BufTy).Contents (Elt F)),
    unary main_arg0 main_v1406 ((extractStridedSlice S4x1x256 ![0, 70, 0] · slices_S4x512x256_S4x1x256_0_70_0) : (⟨S4x512x256, .f32⟩ : BufTy).Contents (Elt F) → (⟨S4x1x256, .f32⟩ : BufTy).Contents (Elt F)),
    reshape main_v1406 main_v1407 rfl shapeCasts_S4x1x256_S4x256,
    unary main_v1407 main_v1408 (broadcastInDim S4x256x1 ![0, 1] bcast_S4x256_S4x256x1_0_1 : (⟨S4x256, .f32⟩ : BufTy).Contents (Elt F) → (⟨S4x256x1, .f32⟩ : BufTy).Contents (Elt F)),
    unary main_arg2 main_v1409 ((extractStridedSlice S4x1x16 ![0, 70, 0] · slices_S4x512x16_S4x1x16_0_70_0) : (⟨S4x512x16, .f32⟩ : BufTy).Contents (Elt F) → (⟨S4x1x16, .f32⟩ : BufTy).Contents (Elt F)),
    reshape main_v1409 main_v1410 rfl shapeCasts_S4x1x16_S4x16,
    unary main_v1410 main_v1411 (broadcastInDim S4x1x16 ![0, 2] bcast_S4x16_S4x1x16_0_2 : (⟨S4x16, .f32⟩ : BufTy).Contents (Elt F) → (⟨S4x1x16, .f32⟩ : BufTy).Contents (Elt F)),
    unary main_v1408 main_v1412 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1411 main_v1413 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1412 main_v1413 main_v1414 (mulf : (⟨S4x256x16, .f32⟩ : BufTy).Contents (Elt F) → (⟨S4x256x16, .f32⟩ : BufTy).Contents (Elt F) → (⟨S4x256x16, .f32⟩ : BufTy).Contents (Elt F)),
    binary main_v1405 main_v1414 main_v1415 (addf : (⟨S4x256x16, .f32⟩ : BufTy).Contents (Elt F) → (⟨S4x256x16, .f32⟩ : BufTy).Contents (Elt F) → (⟨S4x256x16, .f32⟩ : BufTy).Contents (Elt F)),
    unary main_arg3 main_v1416 ((extractStridedSlice S4x1x16 ![0, 70, 0] · slices_S4x512x16_S4x1x16_0_70_0) : (⟨S4x512x16, .f32⟩ : BufTy).Contents (Elt F) → (⟨S4x1x16, .f32⟩ : BufTy).Contents (Elt F)),
    reshape main_v1416 main_v1417 rfl shapeCasts_S4x1x16_S4x16,
    unary main_v1417 main_v1418 (broadcastInDim S4x1x16 ![0, 2] bcast_S4x16_S4x1x16_0_2 : (⟨S4x16, .f32⟩ : BufTy).Contents (Elt F) → (⟨S4x1x16, .f32⟩ : BufTy).Contents (Elt F)),
    unary main_v1418 main_v1419 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1415 main_v1419 main_v1420 (mulf : (⟨S4x256x16, .f32⟩ : BufTy).Contents (Elt F) → (⟨S4x256x16, .f32⟩ : BufTy).Contents (Elt F) → (⟨S4x256x16, .f32⟩ : BufTy).Contents (Elt F)),
    nullary main_cst_140 (constant S_ .f32 0x00000000#32),
    binary main_v1420 main_cst_140 main_v1421 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_141 (constantI S_ 32 70#32),
    unary main_c_141 main_v1422 (broadcastInDim S1 ![] bcast_S_S1 : (⟨S_, .i32⟩ : BufTy).Contents (Elt F) → (⟨S1, .i32⟩ : BufTy).Contents (Elt F)),
    ternary main_v1403 main_v1422 main_v1421 main_v1423 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps70_ok : (stepOps70 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step70_val (V : Valuation τ sig (Elt Ideal)) :
    after (stepOps70 (F := Ideal)) V (no_index (Proc.devRef .tc main_v1415)) = stepH 70 (by decide) (V (Proc.devRef .tc main_arg0)) (V (Proc.devRef .tc main_v3)) (V (Proc.devRef .tc main_arg2)) (V (Proc.devRef .tc main_v1395))
    ∧ after (stepOps70 (F := Ideal)) V (no_index (Proc.devRef .tc main_v1423)) = stepY 70 (by decide) (V (Proc.devRef .tc main_arg3)) (stepH 70 (by decide) (V (Proc.devRef .tc main_arg0)) (V (Proc.devRef .tc main_v3)) (V (Proc.devRef .tc main_arg2)) (V (Proc.devRef .tc main_v1395))) (V (Proc.devRef .tc main_v1403)) := by
  simp only [stepOps70]
  after_results_simp
  first | exact ⟨rfl, rfl⟩ | fail "value"
/-- Step 71 of the loop: operations 1569 … 1590 of the program. -/
abbrev stepOps71 : List (HloOp τ sig (Elt F)) :=
  [ unary main_v3 main_v1424 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1415 main_v1424 main_v1425 (mulf : (⟨S4x256x16, .f32⟩ : BufTy).Contents (Elt F) → (⟨S4x256x16, .f32⟩ : BufTy).Contents (Elt F) → (⟨S4x256x16, .f32⟩ : BufTy).Contents (Elt F)),
    unary main_arg0 main_v1426 ((extractStridedSlice S4x1x256 ![0, 71, 0] · slices_S4x512x256_S4x1x256_0_71_0) : (⟨S4x512x256, .f32⟩ : BufTy).Contents (Elt F) → (⟨S4x1x256, .f32⟩ : BufTy).Contents (Elt F)),
    reshape main_v1426 main_v1427 rfl shapeCasts_S4x1x256_S4x256,
    unary main_v1427 main_v1428 (broadcastInDim S4x256x1 ![0, 1] bcast_S4x256_S4x256x1_0_1 : (⟨S4x256, .f32⟩ : BufTy).Contents (Elt F) → (⟨S4x256x1, .f32⟩ : BufTy).Contents (Elt F)),
    unary main_arg2 main_v1429 ((extractStridedSlice S4x1x16 ![0, 71, 0] · slices_S4x512x16_S4x1x16_0_71_0) : (⟨S4x512x16, .f32⟩ : BufTy).Contents (Elt F) → (⟨S4x1x16, .f32⟩ : BufTy).Contents (Elt F)),
    reshape main_v1429 main_v1430 rfl shapeCasts_S4x1x16_S4x16,
    unary main_v1430 main_v1431 (broadcastInDim S4x1x16 ![0, 2] bcast_S4x16_S4x1x16_0_2 : (⟨S4x16, .f32⟩ : BufTy).Contents (Elt F) → (⟨S4x1x16, .f32⟩ : BufTy).Contents (Elt F)),
    unary main_v1428 main_v1432 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1431 main_v1433 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1432 main_v1433 main_v1434 (mulf : (⟨S4x256x16, .f32⟩ : BufTy).Contents (Elt F) → (⟨S4x256x16, .f32⟩ : BufTy).Contents (Elt F) → (⟨S4x256x16, .f32⟩ : BufTy).Contents (Elt F)),
    binary main_v1425 main_v1434 main_v1435 (addf : (⟨S4x256x16, .f32⟩ : BufTy).Contents (Elt F) → (⟨S4x256x16, .f32⟩ : BufTy).Contents (Elt F) → (⟨S4x256x16, .f32⟩ : BufTy).Contents (Elt F)),
    unary main_arg3 main_v1436 ((extractStridedSlice S4x1x16 ![0, 71, 0] · slices_S4x512x16_S4x1x16_0_71_0) : (⟨S4x512x16, .f32⟩ : BufTy).Contents (Elt F) → (⟨S4x1x16, .f32⟩ : BufTy).Contents (Elt F)),
    reshape main_v1436 main_v1437 rfl shapeCasts_S4x1x16_S4x16,
    unary main_v1437 main_v1438 (broadcastInDim S4x1x16 ![0, 2] bcast_S4x16_S4x1x16_0_2 : (⟨S4x16, .f32⟩ : BufTy).Contents (Elt F) → (⟨S4x1x16, .f32⟩ : BufTy).Contents (Elt F)),
    unary main_v1438 main_v1439 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1435 main_v1439 main_v1440 (mulf : (⟨S4x256x16, .f32⟩ : BufTy).Contents (Elt F) → (⟨S4x256x16, .f32⟩ : BufTy).Contents (Elt F) → (⟨S4x256x16, .f32⟩ : BufTy).Contents (Elt F)),
    nullary main_cst_142 (constant S_ .f32 0x00000000#32),
    binary main_v1440 main_cst_142 main_v1441 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_143 (constantI S_ 32 71#32),
    unary main_c_143 main_v1442 (broadcastInDim S1 ![] bcast_S_S1 : (⟨S_, .i32⟩ : BufTy).Contents (Elt F) → (⟨S1, .i32⟩ : BufTy).Contents (Elt F)),
    ternary main_v1423 main_v1442 main_v1441 main_v1443 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps71_ok : (stepOps71 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step71_val (V : Valuation τ sig (Elt Ideal)) :
    after (stepOps71 (F := Ideal)) V (no_index (Proc.devRef .tc main_v1435)) = stepH 71 (by decide) (V (Proc.devRef .tc main_arg0)) (V (Proc.devRef .tc main_v3)) (V (Proc.devRef .tc main_arg2)) (V (Proc.devRef .tc main_v1415))
    ∧ after (stepOps71 (F := Ideal)) V (no_index (Proc.devRef .tc main_v1443)) = stepY 71 (by decide) (V (Proc.devRef .tc main_arg3)) (stepH 71 (by decide) (V (Proc.devRef .tc main_arg0)) (V (Proc.devRef .tc main_v3)) (V (Proc.devRef .tc main_arg2)) (V (Proc.devRef .tc main_v1415))) (V (Proc.devRef .tc main_v1423)) := by
  simp only [stepOps71]
  after_results_simp
  first | exact ⟨rfl, rfl⟩ | fail "value"
/-- Step 72 of the loop: operations 1591 … 1612 of the program. -/
abbrev stepOps72 : List (HloOp τ sig (Elt F)) :=
  [ unary main_v3 main_v1444 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1435 main_v1444 main_v1445 (mulf : (⟨S4x256x16, .f32⟩ : BufTy).Contents (Elt F) → (⟨S4x256x16, .f32⟩ : BufTy).Contents (Elt F) → (⟨S4x256x16, .f32⟩ : BufTy).Contents (Elt F)),
    unary main_arg0 main_v1446 ((extractStridedSlice S4x1x256 ![0, 72, 0] · slices_S4x512x256_S4x1x256_0_72_0) : (⟨S4x512x256, .f32⟩ : BufTy).Contents (Elt F) → (⟨S4x1x256, .f32⟩ : BufTy).Contents (Elt F)),
    reshape main_v1446 main_v1447 rfl shapeCasts_S4x1x256_S4x256,
    unary main_v1447 main_v1448 (broadcastInDim S4x256x1 ![0, 1] bcast_S4x256_S4x256x1_0_1 : (⟨S4x256, .f32⟩ : BufTy).Contents (Elt F) → (⟨S4x256x1, .f32⟩ : BufTy).Contents (Elt F)),
    unary main_arg2 main_v1449 ((extractStridedSlice S4x1x16 ![0, 72, 0] · slices_S4x512x16_S4x1x16_0_72_0) : (⟨S4x512x16, .f32⟩ : BufTy).Contents (Elt F) → (⟨S4x1x16, .f32⟩ : BufTy).Contents (Elt F)),
    reshape main_v1449 main_v1450 rfl shapeCasts_S4x1x16_S4x16,
    unary main_v1450 main_v1451 (broadcastInDim S4x1x16 ![0, 2] bcast_S4x16_S4x1x16_0_2 : (⟨S4x16, .f32⟩ : BufTy).Contents (Elt F) → (⟨S4x1x16, .f32⟩ : BufTy).Contents (Elt F)),
    unary main_v1448 main_v1452 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1451 main_v1453 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1452 main_v1453 main_v1454 (mulf : (⟨S4x256x16, .f32⟩ : BufTy).Contents (Elt F) → (⟨S4x256x16, .f32⟩ : BufTy).Contents (Elt F) → (⟨S4x256x16, .f32⟩ : BufTy).Contents (Elt F)),
    binary main_v1445 main_v1454 main_v1455 (addf : (⟨S4x256x16, .f32⟩ : BufTy).Contents (Elt F) → (⟨S4x256x16, .f32⟩ : BufTy).Contents (Elt F) → (⟨S4x256x16, .f32⟩ : BufTy).Contents (Elt F)),
    unary main_arg3 main_v1456 ((extractStridedSlice S4x1x16 ![0, 72, 0] · slices_S4x512x16_S4x1x16_0_72_0) : (⟨S4x512x16, .f32⟩ : BufTy).Contents (Elt F) → (⟨S4x1x16, .f32⟩ : BufTy).Contents (Elt F)),
    reshape main_v1456 main_v1457 rfl shapeCasts_S4x1x16_S4x16,
    unary main_v1457 main_v1458 (broadcastInDim S4x1x16 ![0, 2] bcast_S4x16_S4x1x16_0_2 : (⟨S4x16, .f32⟩ : BufTy).Contents (Elt F) → (⟨S4x1x16, .f32⟩ : BufTy).Contents (Elt F)),
    unary main_v1458 main_v1459 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1455 main_v1459 main_v1460 (mulf : (⟨S4x256x16, .f32⟩ : BufTy).Contents (Elt F) → (⟨S4x256x16, .f32⟩ : BufTy).Contents (Elt F) → (⟨S4x256x16, .f32⟩ : BufTy).Contents (Elt F)),
    nullary main_cst_144 (constant S_ .f32 0x00000000#32),
    binary main_v1460 main_cst_144 main_v1461 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_145 (constantI S_ 32 72#32),
    unary main_c_145 main_v1462 (broadcastInDim S1 ![] bcast_S_S1 : (⟨S_, .i32⟩ : BufTy).Contents (Elt F) → (⟨S1, .i32⟩ : BufTy).Contents (Elt F)),
    ternary main_v1443 main_v1462 main_v1461 main_v1463 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps72_ok : (stepOps72 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step72_val (V : Valuation τ sig (Elt Ideal)) :
    after (stepOps72 (F := Ideal)) V (no_index (Proc.devRef .tc main_v1455)) = stepH 72 (by decide) (V (Proc.devRef .tc main_arg0)) (V (Proc.devRef .tc main_v3)) (V (Proc.devRef .tc main_arg2)) (V (Proc.devRef .tc main_v1435))
    ∧ after (stepOps72 (F := Ideal)) V (no_index (Proc.devRef .tc main_v1463)) = stepY 72 (by decide) (V (Proc.devRef .tc main_arg3)) (stepH 72 (by decide) (V (Proc.devRef .tc main_arg0)) (V (Proc.devRef .tc main_v3)) (V (Proc.devRef .tc main_arg2)) (V (Proc.devRef .tc main_v1435))) (V (Proc.devRef .tc main_v1443)) := by
  simp only [stepOps72]
  after_results_simp
  first | exact ⟨rfl, rfl⟩ | fail "value"
/-- Step 73 of the loop: operations 1613 … 1634 of the program. -/
abbrev stepOps73 : List (HloOp τ sig (Elt F)) :=
  [ unary main_v3 main_v1464 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1455 main_v1464 main_v1465 (mulf : (⟨S4x256x16, .f32⟩ : BufTy).Contents (Elt F) → (⟨S4x256x16, .f32⟩ : BufTy).Contents (Elt F) → (⟨S4x256x16, .f32⟩ : BufTy).Contents (Elt F)),
    unary main_arg0 main_v1466 ((extractStridedSlice S4x1x256 ![0, 73, 0] · slices_S4x512x256_S4x1x256_0_73_0) : (⟨S4x512x256, .f32⟩ : BufTy).Contents (Elt F) → (⟨S4x1x256, .f32⟩ : BufTy).Contents (Elt F)),
    reshape main_v1466 main_v1467 rfl shapeCasts_S4x1x256_S4x256,
    unary main_v1467 main_v1468 (broadcastInDim S4x256x1 ![0, 1] bcast_S4x256_S4x256x1_0_1 : (⟨S4x256, .f32⟩ : BufTy).Contents (Elt F) → (⟨S4x256x1, .f32⟩ : BufTy).Contents (Elt F)),
    unary main_arg2 main_v1469 ((extractStridedSlice S4x1x16 ![0, 73, 0] · slices_S4x512x16_S4x1x16_0_73_0) : (⟨S4x512x16, .f32⟩ : BufTy).Contents (Elt F) → (⟨S4x1x16, .f32⟩ : BufTy).Contents (Elt F)),
    reshape main_v1469 main_v1470 rfl shapeCasts_S4x1x16_S4x16,
    unary main_v1470 main_v1471 (broadcastInDim S4x1x16 ![0, 2] bcast_S4x16_S4x1x16_0_2 : (⟨S4x16, .f32⟩ : BufTy).Contents (Elt F) → (⟨S4x1x16, .f32⟩ : BufTy).Contents (Elt F)),
    unary main_v1468 main_v1472 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1471 main_v1473 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1472 main_v1473 main_v1474 (mulf : (⟨S4x256x16, .f32⟩ : BufTy).Contents (Elt F) → (⟨S4x256x16, .f32⟩ : BufTy).Contents (Elt F) → (⟨S4x256x16, .f32⟩ : BufTy).Contents (Elt F)),
    binary main_v1465 main_v1474 main_v1475 (addf : (⟨S4x256x16, .f32⟩ : BufTy).Contents (Elt F) → (⟨S4x256x16, .f32⟩ : BufTy).Contents (Elt F) → (⟨S4x256x16, .f32⟩ : BufTy).Contents (Elt F)),
    unary main_arg3 main_v1476 ((extractStridedSlice S4x1x16 ![0, 73, 0] · slices_S4x512x16_S4x1x16_0_73_0) : (⟨S4x512x16, .f32⟩ : BufTy).Contents (Elt F) → (⟨S4x1x16, .f32⟩ : BufTy).Contents (Elt F)),
    reshape main_v1476 main_v1477 rfl shapeCasts_S4x1x16_S4x16,
    unary main_v1477 main_v1478 (broadcastInDim S4x1x16 ![0, 2] bcast_S4x16_S4x1x16_0_2 : (⟨S4x16, .f32⟩ : BufTy).Contents (Elt F) → (⟨S4x1x16, .f32⟩ : BufTy).Contents (Elt F)),
    unary main_v1478 main_v1479 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1475 main_v1479 main_v1480 (mulf : (⟨S4x256x16, .f32⟩ : BufTy).Contents (Elt F) → (⟨S4x256x16, .f32⟩ : BufTy).Contents (Elt F) → (⟨S4x256x16, .f32⟩ : BufTy).Contents (Elt F)),
    nullary main_cst_146 (constant S_ .f32 0x00000000#32),
    binary main_v1480 main_cst_146 main_v1481 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_147 (constantI S_ 32 73#32),
    unary main_c_147 main_v1482 (broadcastInDim S1 ![] bcast_S_S1 : (⟨S_, .i32⟩ : BufTy).Contents (Elt F) → (⟨S1, .i32⟩ : BufTy).Contents (Elt F)),
    ternary main_v1463 main_v1482 main_v1481 main_v1483 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps73_ok : (stepOps73 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step73_val (V : Valuation τ sig (Elt Ideal)) :
    after (stepOps73 (F := Ideal)) V (no_index (Proc.devRef .tc main_v1475)) = stepH 73 (by decide) (V (Proc.devRef .tc main_arg0)) (V (Proc.devRef .tc main_v3)) (V (Proc.devRef .tc main_arg2)) (V (Proc.devRef .tc main_v1455))
    ∧ after (stepOps73 (F := Ideal)) V (no_index (Proc.devRef .tc main_v1483)) = stepY 73 (by decide) (V (Proc.devRef .tc main_arg3)) (stepH 73 (by decide) (V (Proc.devRef .tc main_arg0)) (V (Proc.devRef .tc main_v3)) (V (Proc.devRef .tc main_arg2)) (V (Proc.devRef .tc main_v1455))) (V (Proc.devRef .tc main_v1463)) := by
  simp only [stepOps73]
  after_results_simp
  first | exact ⟨rfl, rfl⟩ | fail "value"
/-- Step 74 of the loop: operations 1635 … 1656 of the program. -/
abbrev stepOps74 : List (HloOp τ sig (Elt F)) :=
  [ unary main_v3 main_v1484 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1475 main_v1484 main_v1485 (mulf : (⟨S4x256x16, .f32⟩ : BufTy).Contents (Elt F) → (⟨S4x256x16, .f32⟩ : BufTy).Contents (Elt F) → (⟨S4x256x16, .f32⟩ : BufTy).Contents (Elt F)),
    unary main_arg0 main_v1486 ((extractStridedSlice S4x1x256 ![0, 74, 0] · slices_S4x512x256_S4x1x256_0_74_0) : (⟨S4x512x256, .f32⟩ : BufTy).Contents (Elt F) → (⟨S4x1x256, .f32⟩ : BufTy).Contents (Elt F)),
    reshape main_v1486 main_v1487 rfl shapeCasts_S4x1x256_S4x256,
    unary main_v1487 main_v1488 (broadcastInDim S4x256x1 ![0, 1] bcast_S4x256_S4x256x1_0_1 : (⟨S4x256, .f32⟩ : BufTy).Contents (Elt F) → (⟨S4x256x1, .f32⟩ : BufTy).Contents (Elt F)),
    unary main_arg2 main_v1489 ((extractStridedSlice S4x1x16 ![0, 74, 0] · slices_S4x512x16_S4x1x16_0_74_0) : (⟨S4x512x16, .f32⟩ : BufTy).Contents (Elt F) → (⟨S4x1x16, .f32⟩ : BufTy).Contents (Elt F)),
    reshape main_v1489 main_v1490 rfl shapeCasts_S4x1x16_S4x16,
    unary main_v1490 main_v1491 (broadcastInDim S4x1x16 ![0, 2] bcast_S4x16_S4x1x16_0_2 : (⟨S4x16, .f32⟩ : BufTy).Contents (Elt F) → (⟨S4x1x16, .f32⟩ : BufTy).Contents (Elt F)),
    unary main_v1488 main_v1492 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1491 main_v1493 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1492 main_v1493 main_v1494 (mulf : (⟨S4x256x16, .f32⟩ : BufTy).Contents (Elt F) → (⟨S4x256x16, .f32⟩ : BufTy).Contents (Elt F) → (⟨S4x256x16, .f32⟩ : BufTy).Contents (Elt F)),
    binary main_v1485 main_v1494 main_v1495 (addf : (⟨S4x256x16, .f32⟩ : BufTy).Contents (Elt F) → (⟨S4x256x16, .f32⟩ : BufTy).Contents (Elt F) → (⟨S4x256x16, .f32⟩ : BufTy).Contents (Elt F)),
    unary main_arg3 main_v1496 ((extractStridedSlice S4x1x16 ![0, 74, 0] · slices_S4x512x16_S4x1x16_0_74_0) : (⟨S4x512x16, .f32⟩ : BufTy).Contents (Elt F) → (⟨S4x1x16, .f32⟩ : BufTy).Contents (Elt F)),
    reshape main_v1496 main_v1497 rfl shapeCasts_S4x1x16_S4x16,
    unary main_v1497 main_v1498 (broadcastInDim S4x1x16 ![0, 2] bcast_S4x16_S4x1x16_0_2 : (⟨S4x16, .f32⟩ : BufTy).Contents (Elt F) → (⟨S4x1x16, .f32⟩ : BufTy).Contents (Elt F)),
    unary main_v1498 main_v1499 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1495 main_v1499 main_v1500 (mulf : (⟨S4x256x16, .f32⟩ : BufTy).Contents (Elt F) → (⟨S4x256x16, .f32⟩ : BufTy).Contents (Elt F) → (⟨S4x256x16, .f32⟩ : BufTy).Contents (Elt F)),
    nullary main_cst_148 (constant S_ .f32 0x00000000#32),
    binary main_v1500 main_cst_148 main_v1501 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_149 (constantI S_ 32 74#32),
    unary main_c_149 main_v1502 (broadcastInDim S1 ![] bcast_S_S1 : (⟨S_, .i32⟩ : BufTy).Contents (Elt F) → (⟨S1, .i32⟩ : BufTy).Contents (Elt F)),
    ternary main_v1483 main_v1502 main_v1501 main_v1503 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps74_ok : (stepOps74 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step74_val (V : Valuation τ sig (Elt Ideal)) :
    after (stepOps74 (F := Ideal)) V (no_index (Proc.devRef .tc main_v1495)) = stepH 74 (by decide) (V (Proc.devRef .tc main_arg0)) (V (Proc.devRef .tc main_v3)) (V (Proc.devRef .tc main_arg2)) (V (Proc.devRef .tc main_v1475))
    ∧ after (stepOps74 (F := Ideal)) V (no_index (Proc.devRef .tc main_v1503)) = stepY 74 (by decide) (V (Proc.devRef .tc main_arg3)) (stepH 74 (by decide) (V (Proc.devRef .tc main_arg0)) (V (Proc.devRef .tc main_v3)) (V (Proc.devRef .tc main_arg2)) (V (Proc.devRef .tc main_v1475))) (V (Proc.devRef .tc main_v1483)) := by
  simp only [stepOps74]
  after_results_simp
  first | exact ⟨rfl, rfl⟩ | fail "value"
/-- Step 75 of the loop: operations 1657 … 1678 of the program. -/
abbrev stepOps75 : List (HloOp τ sig (Elt F)) :=
  [ unary main_v3 main_v1504 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1495 main_v1504 main_v1505 (mulf : (⟨S4x256x16, .f32⟩ : BufTy).Contents (Elt F) → (⟨S4x256x16, .f32⟩ : BufTy).Contents (Elt F) → (⟨S4x256x16, .f32⟩ : BufTy).Contents (Elt F)),
    unary main_arg0 main_v1506 ((extractStridedSlice S4x1x256 ![0, 75, 0] · slices_S4x512x256_S4x1x256_0_75_0) : (⟨S4x512x256, .f32⟩ : BufTy).Contents (Elt F) → (⟨S4x1x256, .f32⟩ : BufTy).Contents (Elt F)),
    reshape main_v1506 main_v1507 rfl shapeCasts_S4x1x256_S4x256,
    unary main_v1507 main_v1508 (broadcastInDim S4x256x1 ![0, 1] bcast_S4x256_S4x256x1_0_1 : (⟨S4x256, .f32⟩ : BufTy).Contents (Elt F) → (⟨S4x256x1, .f32⟩ : BufTy).Contents (Elt F)),
    unary main_arg2 main_v1509 ((extractStridedSlice S4x1x16 ![0, 75, 0] · slices_S4x512x16_S4x1x16_0_75_0) : (⟨S4x512x16, .f32⟩ : BufTy).Contents (Elt F) → (⟨S4x1x16, .f32⟩ : BufTy).Contents (Elt F)),
    reshape main_v1509 main_v1510 rfl shapeCasts_S4x1x16_S4x16,
    unary main_v1510 main_v1511 (broadcastInDim S4x1x16 ![0, 2] bcast_S4x16_S4x1x16_0_2 : (⟨S4x16, .f32⟩ : BufTy).Contents (Elt F) → (⟨S4x1x16, .f32⟩ : BufTy).Contents (Elt F)),
    unary main_v1508 main_v1512 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1511 main_v1513 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1512 main_v1513 main_v1514 (mulf : (⟨S4x256x16, .f32⟩ : BufTy).Contents (Elt F) → (⟨S4x256x16, .f32⟩ : BufTy).Contents (Elt F) → (⟨S4x256x16, .f32⟩ : BufTy).Contents (Elt F)),
    binary main_v1505 main_v1514 main_v1515 (addf : (⟨S4x256x16, .f32⟩ : BufTy).Contents (Elt F) → (⟨S4x256x16, .f32⟩ : BufTy).Contents (Elt F) → (⟨S4x256x16, .f32⟩ : BufTy).Contents (Elt F)),
    unary main_arg3 main_v1516 ((extractStridedSlice S4x1x16 ![0, 75, 0] · slices_S4x512x16_S4x1x16_0_75_0) : (⟨S4x512x16, .f32⟩ : BufTy).Contents (Elt F) → (⟨S4x1x16, .f32⟩ : BufTy).Contents (Elt F)),
    reshape main_v1516 main_v1517 rfl shapeCasts_S4x1x16_S4x16,
    unary main_v1517 main_v1518 (broadcastInDim S4x1x16 ![0, 2] bcast_S4x16_S4x1x16_0_2 : (⟨S4x16, .f32⟩ : BufTy).Contents (Elt F) → (⟨S4x1x16, .f32⟩ : BufTy).Contents (Elt F)),
    unary main_v1518 main_v1519 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1515 main_v1519 main_v1520 (mulf : (⟨S4x256x16, .f32⟩ : BufTy).Contents (Elt F) → (⟨S4x256x16, .f32⟩ : BufTy).Contents (Elt F) → (⟨S4x256x16, .f32⟩ : BufTy).Contents (Elt F)),
    nullary main_cst_150 (constant S_ .f32 0x00000000#32),
    binary main_v1520 main_cst_150 main_v1521 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_151 (constantI S_ 32 75#32),
    unary main_c_151 main_v1522 (broadcastInDim S1 ![] bcast_S_S1 : (⟨S_, .i32⟩ : BufTy).Contents (Elt F) → (⟨S1, .i32⟩ : BufTy).Contents (Elt F)),
    ternary main_v1503 main_v1522 main_v1521 main_v1523 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps75_ok : (stepOps75 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step75_val (V : Valuation τ sig (Elt Ideal)) :
    after (stepOps75 (F := Ideal)) V (no_index (Proc.devRef .tc main_v1515)) = stepH 75 (by decide) (V (Proc.devRef .tc main_arg0)) (V (Proc.devRef .tc main_v3)) (V (Proc.devRef .tc main_arg2)) (V (Proc.devRef .tc main_v1495))
    ∧ after (stepOps75 (F := Ideal)) V (no_index (Proc.devRef .tc main_v1523)) = stepY 75 (by decide) (V (Proc.devRef .tc main_arg3)) (stepH 75 (by decide) (V (Proc.devRef .tc main_arg0)) (V (Proc.devRef .tc main_v3)) (V (Proc.devRef .tc main_arg2)) (V (Proc.devRef .tc main_v1495))) (V (Proc.devRef .tc main_v1503)) := by
  simp only [stepOps75]
  after_results_simp
  first | exact ⟨rfl, rfl⟩ | fail "value"
/-- Step 76 of the loop: operations 1679 … 1700 of the program. -/
abbrev stepOps76 : List (HloOp τ sig (Elt F)) :=
  [ unary main_v3 main_v1524 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1515 main_v1524 main_v1525 (mulf : (⟨S4x256x16, .f32⟩ : BufTy).Contents (Elt F) → (⟨S4x256x16, .f32⟩ : BufTy).Contents (Elt F) → (⟨S4x256x16, .f32⟩ : BufTy).Contents (Elt F)),
    unary main_arg0 main_v1526 ((extractStridedSlice S4x1x256 ![0, 76, 0] · slices_S4x512x256_S4x1x256_0_76_0) : (⟨S4x512x256, .f32⟩ : BufTy).Contents (Elt F) → (⟨S4x1x256, .f32⟩ : BufTy).Contents (Elt F)),
    reshape main_v1526 main_v1527 rfl shapeCasts_S4x1x256_S4x256,
    unary main_v1527 main_v1528 (broadcastInDim S4x256x1 ![0, 1] bcast_S4x256_S4x256x1_0_1 : (⟨S4x256, .f32⟩ : BufTy).Contents (Elt F) → (⟨S4x256x1, .f32⟩ : BufTy).Contents (Elt F)),
    unary main_arg2 main_v1529 ((extractStridedSlice S4x1x16 ![0, 76, 0] · slices_S4x512x16_S4x1x16_0_76_0) : (⟨S4x512x16, .f32⟩ : BufTy).Contents (Elt F) → (⟨S4x1x16, .f32⟩ : BufTy).Contents (Elt F)),
    reshape main_v1529 main_v1530 rfl shapeCasts_S4x1x16_S4x16,
    unary main_v1530 main_v1531 (broadcastInDim S4x1x16 ![0, 2] bcast_S4x16_S4x1x16_0_2 : (⟨S4x16, .f32⟩ : BufTy).Contents (Elt F) → (⟨S4x1x16, .f32⟩ : BufTy).Contents (Elt F)),
    unary main_v1528 main_v1532 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1531 main_v1533 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1532 main_v1533 main_v1534 (mulf : (⟨S4x256x16, .f32⟩ : BufTy).Contents (Elt F) → (⟨S4x256x16, .f32⟩ : BufTy).Contents (Elt F) → (⟨S4x256x16, .f32⟩ : BufTy).Contents (Elt F)),
    binary main_v1525 main_v1534 main_v1535 (addf : (⟨S4x256x16, .f32⟩ : BufTy).Contents (Elt F) → (⟨S4x256x16, .f32⟩ : BufTy).Contents (Elt F) → (⟨S4x256x16, .f32⟩ : BufTy).Contents (Elt F)),
    unary main_arg3 main_v1536 ((extractStridedSlice S4x1x16 ![0, 76, 0] · slices_S4x512x16_S4x1x16_0_76_0) : (⟨S4x512x16, .f32⟩ : BufTy).Contents (Elt F) → (⟨S4x1x16, .f32⟩ : BufTy).Contents (Elt F)),
    reshape main_v1536 main_v1537 rfl shapeCasts_S4x1x16_S4x16,
    unary main_v1537 main_v1538 (broadcastInDim S4x1x16 ![0, 2] bcast_S4x16_S4x1x16_0_2 : (⟨S4x16, .f32⟩ : BufTy).Contents (Elt F) → (⟨S4x1x16, .f32⟩ : BufTy).Contents (Elt F)),
    unary main_v1538 main_v1539 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1535 main_v1539 main_v1540 (mulf : (⟨S4x256x16, .f32⟩ : BufTy).Contents (Elt F) → (⟨S4x256x16, .f32⟩ : BufTy).Contents (Elt F) → (⟨S4x256x16, .f32⟩ : BufTy).Contents (Elt F)),
    nullary main_cst_152 (constant S_ .f32 0x00000000#32),
    binary main_v1540 main_cst_152 main_v1541 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_153 (constantI S_ 32 76#32),
    unary main_c_153 main_v1542 (broadcastInDim S1 ![] bcast_S_S1 : (⟨S_, .i32⟩ : BufTy).Contents (Elt F) → (⟨S1, .i32⟩ : BufTy).Contents (Elt F)),
    ternary main_v1523 main_v1542 main_v1541 main_v1543 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps76_ok : (stepOps76 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step76_val (V : Valuation τ sig (Elt Ideal)) :
    after (stepOps76 (F := Ideal)) V (no_index (Proc.devRef .tc main_v1535)) = stepH 76 (by decide) (V (Proc.devRef .tc main_arg0)) (V (Proc.devRef .tc main_v3)) (V (Proc.devRef .tc main_arg2)) (V (Proc.devRef .tc main_v1515))
    ∧ after (stepOps76 (F := Ideal)) V (no_index (Proc.devRef .tc main_v1543)) = stepY 76 (by decide) (V (Proc.devRef .tc main_arg3)) (stepH 76 (by decide) (V (Proc.devRef .tc main_arg0)) (V (Proc.devRef .tc main_v3)) (V (Proc.devRef .tc main_arg2)) (V (Proc.devRef .tc main_v1515))) (V (Proc.devRef .tc main_v1523)) := by
  simp only [stepOps76]
  after_results_simp
  first | exact ⟨rfl, rfl⟩ | fail "value"
/-- Step 77 of the loop: operations 1701 … 1722 of the program. -/
abbrev stepOps77 : List (HloOp τ sig (Elt F)) :=
  [ unary main_v3 main_v1544 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1535 main_v1544 main_v1545 (mulf : (⟨S4x256x16, .f32⟩ : BufTy).Contents (Elt F) → (⟨S4x256x16, .f32⟩ : BufTy).Contents (Elt F) → (⟨S4x256x16, .f32⟩ : BufTy).Contents (Elt F)),
    unary main_arg0 main_v1546 ((extractStridedSlice S4x1x256 ![0, 77, 0] · slices_S4x512x256_S4x1x256_0_77_0) : (⟨S4x512x256, .f32⟩ : BufTy).Contents (Elt F) → (⟨S4x1x256, .f32⟩ : BufTy).Contents (Elt F)),
    reshape main_v1546 main_v1547 rfl shapeCasts_S4x1x256_S4x256,
    unary main_v1547 main_v1548 (broadcastInDim S4x256x1 ![0, 1] bcast_S4x256_S4x256x1_0_1 : (⟨S4x256, .f32⟩ : BufTy).Contents (Elt F) → (⟨S4x256x1, .f32⟩ : BufTy).Contents (Elt F)),
    unary main_arg2 main_v1549 ((extractStridedSlice S4x1x16 ![0, 77, 0] · slices_S4x512x16_S4x1x16_0_77_0) : (⟨S4x512x16, .f32⟩ : BufTy).Contents (Elt F) → (⟨S4x1x16, .f32⟩ : BufTy).Contents (Elt F)),
    reshape main_v1549 main_v1550 rfl shapeCasts_S4x1x16_S4x16,
    unary main_v1550 main_v1551 (broadcastInDim S4x1x16 ![0, 2] bcast_S4x16_S4x1x16_0_2 : (⟨S4x16, .f32⟩ : BufTy).Contents (Elt F) → (⟨S4x1x16, .f32⟩ : BufTy).Contents (Elt F)),
    unary main_v1548 main_v1552 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1551 main_v1553 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1552 main_v1553 main_v1554 (mulf : (⟨S4x256x16, .f32⟩ : BufTy).Contents (Elt F) → (⟨S4x256x16, .f32⟩ : BufTy).Contents (Elt F) → (⟨S4x256x16, .f32⟩ : BufTy).Contents (Elt F)),
    binary main_v1545 main_v1554 main_v1555 (addf : (⟨S4x256x16, .f32⟩ : BufTy).Contents (Elt F) → (⟨S4x256x16, .f32⟩ : BufTy).Contents (Elt F) → (⟨S4x256x16, .f32⟩ : BufTy).Contents (Elt F)),
    unary main_arg3 main_v1556 ((extractStridedSlice S4x1x16 ![0, 77, 0] · slices_S4x512x16_S4x1x16_0_77_0) : (⟨S4x512x16, .f32⟩ : BufTy).Contents (Elt F) → (⟨S4x1x16, .f32⟩ : BufTy).Contents (Elt F)),
    reshape main_v1556 main_v1557 rfl shapeCasts_S4x1x16_S4x16,
    unary main_v1557 main_v1558 (broadcastInDim S4x1x16 ![0, 2] bcast_S4x16_S4x1x16_0_2 : (⟨S4x16, .f32⟩ : BufTy).Contents (Elt F) → (⟨S4x1x16, .f32⟩ : BufTy).Contents (Elt F)),
    unary main_v1558 main_v1559 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1555 main_v1559 main_v1560 (mulf : (⟨S4x256x16, .f32⟩ : BufTy).Contents (Elt F) → (⟨S4x256x16, .f32⟩ : BufTy).Contents (Elt F) → (⟨S4x256x16, .f32⟩ : BufTy).Contents (Elt F)),
    nullary main_cst_154 (constant S_ .f32 0x00000000#32),
    binary main_v1560 main_cst_154 main_v1561 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_155 (constantI S_ 32 77#32),
    unary main_c_155 main_v1562 (broadcastInDim S1 ![] bcast_S_S1 : (⟨S_, .i32⟩ : BufTy).Contents (Elt F) → (⟨S1, .i32⟩ : BufTy).Contents (Elt F)),
    ternary main_v1543 main_v1562 main_v1561 main_v1563 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps77_ok : (stepOps77 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step77_val (V : Valuation τ sig (Elt Ideal)) :
    after (stepOps77 (F := Ideal)) V (no_index (Proc.devRef .tc main_v1555)) = stepH 77 (by decide) (V (Proc.devRef .tc main_arg0)) (V (Proc.devRef .tc main_v3)) (V (Proc.devRef .tc main_arg2)) (V (Proc.devRef .tc main_v1535))
    ∧ after (stepOps77 (F := Ideal)) V (no_index (Proc.devRef .tc main_v1563)) = stepY 77 (by decide) (V (Proc.devRef .tc main_arg3)) (stepH 77 (by decide) (V (Proc.devRef .tc main_arg0)) (V (Proc.devRef .tc main_v3)) (V (Proc.devRef .tc main_arg2)) (V (Proc.devRef .tc main_v1535))) (V (Proc.devRef .tc main_v1543)) := by
  simp only [stepOps77]
  after_results_simp
  first | exact ⟨rfl, rfl⟩ | fail "value"
/-- Step 78 of the loop: operations 1723 … 1744 of the program. -/
abbrev stepOps78 : List (HloOp τ sig (Elt F)) :=
  [ unary main_v3 main_v1564 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1555 main_v1564 main_v1565 (mulf : (⟨S4x256x16, .f32⟩ : BufTy).Contents (Elt F) → (⟨S4x256x16, .f32⟩ : BufTy).Contents (Elt F) → (⟨S4x256x16, .f32⟩ : BufTy).Contents (Elt F)),
    unary main_arg0 main_v1566 ((extractStridedSlice S4x1x256 ![0, 78, 0] · slices_S4x512x256_S4x1x256_0_78_0) : (⟨S4x512x256, .f32⟩ : BufTy).Contents (Elt F) → (⟨S4x1x256, .f32⟩ : BufTy).Contents (Elt F)),
    reshape main_v1566 main_v1567 rfl shapeCasts_S4x1x256_S4x256,
    unary main_v1567 main_v1568 (broadcastInDim S4x256x1 ![0, 1] bcast_S4x256_S4x256x1_0_1 : (⟨S4x256, .f32⟩ : BufTy).Contents (Elt F) → (⟨S4x256x1, .f32⟩ : BufTy).Contents (Elt F)),
    unary main_arg2 main_v1569 ((extractStridedSlice S4x1x16 ![0, 78, 0] · slices_S4x512x16_S4x1x16_0_78_0) : (⟨S4x512x16, .f32⟩ : BufTy).Contents (Elt F) → (⟨S4x1x16, .f32⟩ : BufTy).Contents (Elt F)),
    reshape main_v1569 main_v1570 rfl shapeCasts_S4x1x16_S4x16,
    unary main_v1570 main_v1571 (broadcastInDim S4x1x16 ![0, 2] bcast_S4x16_S4x1x16_0_2 : (⟨S4x16, .f32⟩ : BufTy).Contents (Elt F) → (⟨S4x1x16, .f32⟩ : BufTy).Contents (Elt F)),
    unary main_v1568 main_v1572 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1571 main_v1573 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1572 main_v1573 main_v1574 (mulf : (⟨S4x256x16, .f32⟩ : BufTy).Contents (Elt F) → (⟨S4x256x16, .f32⟩ : BufTy).Contents (Elt F) → (⟨S4x256x16, .f32⟩ : BufTy).Contents (Elt F)),
    binary main_v1565 main_v1574 main_v1575 (addf : (⟨S4x256x16, .f32⟩ : BufTy).Contents (Elt F) → (⟨S4x256x16, .f32⟩ : BufTy).Contents (Elt F) → (⟨S4x256x16, .f32⟩ : BufTy).Contents (Elt F)),
    unary main_arg3 main_v1576 ((extractStridedSlice S4x1x16 ![0, 78, 0] · slices_S4x512x16_S4x1x16_0_78_0) : (⟨S4x512x16, .f32⟩ : BufTy).Contents (Elt F) → (⟨S4x1x16, .f32⟩ : BufTy).Contents (Elt F)),
    reshape main_v1576 main_v1577 rfl shapeCasts_S4x1x16_S4x16,
    unary main_v1577 main_v1578 (broadcastInDim S4x1x16 ![0, 2] bcast_S4x16_S4x1x16_0_2 : (⟨S4x16, .f32⟩ : BufTy).Contents (Elt F) → (⟨S4x1x16, .f32⟩ : BufTy).Contents (Elt F)),
    unary main_v1578 main_v1579 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1575 main_v1579 main_v1580 (mulf : (⟨S4x256x16, .f32⟩ : BufTy).Contents (Elt F) → (⟨S4x256x16, .f32⟩ : BufTy).Contents (Elt F) → (⟨S4x256x16, .f32⟩ : BufTy).Contents (Elt F)),
    nullary main_cst_156 (constant S_ .f32 0x00000000#32),
    binary main_v1580 main_cst_156 main_v1581 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_157 (constantI S_ 32 78#32),
    unary main_c_157 main_v1582 (broadcastInDim S1 ![] bcast_S_S1 : (⟨S_, .i32⟩ : BufTy).Contents (Elt F) → (⟨S1, .i32⟩ : BufTy).Contents (Elt F)),
    ternary main_v1563 main_v1582 main_v1581 main_v1583 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps78_ok : (stepOps78 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step78_val (V : Valuation τ sig (Elt Ideal)) :
    after (stepOps78 (F := Ideal)) V (no_index (Proc.devRef .tc main_v1575)) = stepH 78 (by decide) (V (Proc.devRef .tc main_arg0)) (V (Proc.devRef .tc main_v3)) (V (Proc.devRef .tc main_arg2)) (V (Proc.devRef .tc main_v1555))
    ∧ after (stepOps78 (F := Ideal)) V (no_index (Proc.devRef .tc main_v1583)) = stepY 78 (by decide) (V (Proc.devRef .tc main_arg3)) (stepH 78 (by decide) (V (Proc.devRef .tc main_arg0)) (V (Proc.devRef .tc main_v3)) (V (Proc.devRef .tc main_arg2)) (V (Proc.devRef .tc main_v1555))) (V (Proc.devRef .tc main_v1563)) := by
  simp only [stepOps78]
  after_results_simp
  first | exact ⟨rfl, rfl⟩ | fail "value"
/-- Step 79 of the loop: operations 1745 … 1766 of the program. -/
abbrev stepOps79 : List (HloOp τ sig (Elt F)) :=
  [ unary main_v3 main_v1584 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1575 main_v1584 main_v1585 (mulf : (⟨S4x256x16, .f32⟩ : BufTy).Contents (Elt F) → (⟨S4x256x16, .f32⟩ : BufTy).Contents (Elt F) → (⟨S4x256x16, .f32⟩ : BufTy).Contents (Elt F)),
    unary main_arg0 main_v1586 ((extractStridedSlice S4x1x256 ![0, 79, 0] · slices_S4x512x256_S4x1x256_0_79_0) : (⟨S4x512x256, .f32⟩ : BufTy).Contents (Elt F) → (⟨S4x1x256, .f32⟩ : BufTy).Contents (Elt F)),
    reshape main_v1586 main_v1587 rfl shapeCasts_S4x1x256_S4x256,
    unary main_v1587 main_v1588 (broadcastInDim S4x256x1 ![0, 1] bcast_S4x256_S4x256x1_0_1 : (⟨S4x256, .f32⟩ : BufTy).Contents (Elt F) → (⟨S4x256x1, .f32⟩ : BufTy).Contents (Elt F)),
    unary main_arg2 main_v1589 ((extractStridedSlice S4x1x16 ![0, 79, 0] · slices_S4x512x16_S4x1x16_0_79_0) : (⟨S4x512x16, .f32⟩ : BufTy).Contents (Elt F) → (⟨S4x1x16, .f32⟩ : BufTy).Contents (Elt F)),
    reshape main_v1589 main_v1590 rfl shapeCasts_S4x1x16_S4x16,
    unary main_v1590 main_v1591 (broadcastInDim S4x1x16 ![0, 2] bcast_S4x16_S4x1x16_0_2 : (⟨S4x16, .f32⟩ : BufTy).Contents (Elt F) → (⟨S4x1x16, .f32⟩ : BufTy).Contents (Elt F)),
    unary main_v1588 main_v1592 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1591 main_v1593 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1592 main_v1593 main_v1594 (mulf : (⟨S4x256x16, .f32⟩ : BufTy).Contents (Elt F) → (⟨S4x256x16, .f32⟩ : BufTy).Contents (Elt F) → (⟨S4x256x16, .f32⟩ : BufTy).Contents (Elt F)),
    binary main_v1585 main_v1594 main_v1595 (addf : (⟨S4x256x16, .f32⟩ : BufTy).Contents (Elt F) → (⟨S4x256x16, .f32⟩ : BufTy).Contents (Elt F) → (⟨S4x256x16, .f32⟩ : BufTy).Contents (Elt F)),
    unary main_arg3 main_v1596 ((extractStridedSlice S4x1x16 ![0, 79, 0] · slices_S4x512x16_S4x1x16_0_79_0) : (⟨S4x512x16, .f32⟩ : BufTy).Contents (Elt F) → (⟨S4x1x16, .f32⟩ : BufTy).Contents (Elt F)),
    reshape main_v1596 main_v1597 rfl shapeCasts_S4x1x16_S4x16,
    unary main_v1597 main_v1598 (broadcastInDim S4x1x16 ![0, 2] bcast_S4x16_S4x1x16_0_2 : (⟨S4x16, .f32⟩ : BufTy).Contents (Elt F) → (⟨S4x1x16, .f32⟩ : BufTy).Contents (Elt F)),
    unary main_v1598 main_v1599 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1595 main_v1599 main_v1600 (mulf : (⟨S4x256x16, .f32⟩ : BufTy).Contents (Elt F) → (⟨S4x256x16, .f32⟩ : BufTy).Contents (Elt F) → (⟨S4x256x16, .f32⟩ : BufTy).Contents (Elt F)),
    nullary main_cst_158 (constant S_ .f32 0x00000000#32),
    binary main_v1600 main_cst_158 main_v1601 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_159 (constantI S_ 32 79#32),
    unary main_c_159 main_v1602 (broadcastInDim S1 ![] bcast_S_S1 : (⟨S_, .i32⟩ : BufTy).Contents (Elt F) → (⟨S1, .i32⟩ : BufTy).Contents (Elt F)),
    ternary main_v1583 main_v1602 main_v1601 main_v1603 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps79_ok : (stepOps79 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step79_val (V : Valuation τ sig (Elt Ideal)) :
    after (stepOps79 (F := Ideal)) V (no_index (Proc.devRef .tc main_v1595)) = stepH 79 (by decide) (V (Proc.devRef .tc main_arg0)) (V (Proc.devRef .tc main_v3)) (V (Proc.devRef .tc main_arg2)) (V (Proc.devRef .tc main_v1575))
    ∧ after (stepOps79 (F := Ideal)) V (no_index (Proc.devRef .tc main_v1603)) = stepY 79 (by decide) (V (Proc.devRef .tc main_arg3)) (stepH 79 (by decide) (V (Proc.devRef .tc main_arg0)) (V (Proc.devRef .tc main_v3)) (V (Proc.devRef .tc main_arg2)) (V (Proc.devRef .tc main_v1575))) (V (Proc.devRef .tc main_v1583)) := by
  simp only [stepOps79]
  after_results_simp
  first | exact ⟨rfl, rfl⟩ | fail "value"

end Cert.ReferenceIdeal.RefRun

end
-- ==== Proof.RefTableStep05.lean ====
/-
  Steps 80 … 95 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 80 of the loop: operations 1767 … 1788 of the program. -/
abbrev stepOps80 : List (HloOp τ sig (Elt F)) :=
  [ unary main_v3 main_v1604 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1595 main_v1604 main_v1605 (mulf : (⟨S4x256x16, .f32⟩ : BufTy).Contents (Elt F) → (⟨S4x256x16, .f32⟩ : BufTy).Contents (Elt F) → (⟨S4x256x16, .f32⟩ : BufTy).Contents (Elt F)),
    unary main_arg0 main_v1606 ((extractStridedSlice S4x1x256 ![0, 80, 0] · slices_S4x512x256_S4x1x256_0_80_0) : (⟨S4x512x256, .f32⟩ : BufTy).Contents (Elt F) → (⟨S4x1x256, .f32⟩ : BufTy).Contents (Elt F)),
    reshape main_v1606 main_v1607 rfl shapeCasts_S4x1x256_S4x256,
    unary main_v1607 main_v1608 (broadcastInDim S4x256x1 ![0, 1] bcast_S4x256_S4x256x1_0_1 : (⟨S4x256, .f32⟩ : BufTy).Contents (Elt F) → (⟨S4x256x1, .f32⟩ : BufTy).Contents (Elt F)),
    unary main_arg2 main_v1609 ((extractStridedSlice S4x1x16 ![0, 80, 0] · slices_S4x512x16_S4x1x16_0_80_0) : (⟨S4x512x16, .f32⟩ : BufTy).Contents (Elt F) → (⟨S4x1x16, .f32⟩ : BufTy).Contents (Elt F)),
    reshape main_v1609 main_v1610 rfl shapeCasts_S4x1x16_S4x16,
    unary main_v1610 main_v1611 (broadcastInDim S4x1x16 ![0, 2] bcast_S4x16_S4x1x16_0_2 : (⟨S4x16, .f32⟩ : BufTy).Contents (Elt F) → (⟨S4x1x16, .f32⟩ : BufTy).Contents (Elt F)),
    unary main_v1608 main_v1612 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1611 main_v1613 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1612 main_v1613 main_v1614 (mulf : (⟨S4x256x16, .f32⟩ : BufTy).Contents (Elt F) → (⟨S4x256x16, .f32⟩ : BufTy).Contents (Elt F) → (⟨S4x256x16, .f32⟩ : BufTy).Contents (Elt F)),
    binary main_v1605 main_v1614 main_v1615 (addf : (⟨S4x256x16, .f32⟩ : BufTy).Contents (Elt F) → (⟨S4x256x16, .f32⟩ : BufTy).Contents (Elt F) → (⟨S4x256x16, .f32⟩ : BufTy).Contents (Elt F)),
    unary main_arg3 main_v1616 ((extractStridedSlice S4x1x16 ![0, 80, 0] · slices_S4x512x16_S4x1x16_0_80_0) : (⟨S4x512x16, .f32⟩ : BufTy).Contents (Elt F) → (⟨S4x1x16, .f32⟩ : BufTy).Contents (Elt F)),
    reshape main_v1616 main_v1617 rfl shapeCasts_S4x1x16_S4x16,
    unary main_v1617 main_v1618 (broadcastInDim S4x1x16 ![0, 2] bcast_S4x16_S4x1x16_0_2 : (⟨S4x16, .f32⟩ : BufTy).Contents (Elt F) → (⟨S4x1x16, .f32⟩ : BufTy).Contents (Elt F)),
    unary main_v1618 main_v1619 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1615 main_v1619 main_v1620 (mulf : (⟨S4x256x16, .f32⟩ : BufTy).Contents (Elt F) → (⟨S4x256x16, .f32⟩ : BufTy).Contents (Elt F) → (⟨S4x256x16, .f32⟩ : BufTy).Contents (Elt F)),
    nullary main_cst_160 (constant S_ .f32 0x00000000#32),
    binary main_v1620 main_cst_160 main_v1621 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_161 (constantI S_ 32 80#32),
    unary main_c_161 main_v1622 (broadcastInDim S1 ![] bcast_S_S1 : (⟨S_, .i32⟩ : BufTy).Contents (Elt F) → (⟨S1, .i32⟩ : BufTy).Contents (Elt F)),
    ternary main_v1603 main_v1622 main_v1621 main_v1623 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps80_ok : (stepOps80 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step80_val (V : Valuation τ sig (Elt Ideal)) :
    after (stepOps80 (F := Ideal)) V (no_index (Proc.devRef .tc main_v1615)) = stepH 80 (by decide) (V (Proc.devRef .tc main_arg0)) (V (Proc.devRef .tc main_v3)) (V (Proc.devRef .tc main_arg2)) (V (Proc.devRef .tc main_v1595))
    ∧ after (stepOps80 (F := Ideal)) V (no_index (Proc.devRef .tc main_v1623)) = stepY 80 (by decide) (V (Proc.devRef .tc main_arg3)) (stepH 80 (by decide) (V (Proc.devRef .tc main_arg0)) (V (Proc.devRef .tc main_v3)) (V (Proc.devRef .tc main_arg2)) (V (Proc.devRef .tc main_v1595))) (V (Proc.devRef .tc main_v1603)) := by
  simp only [stepOps80]
  after_results_simp
  first | exact ⟨rfl, rfl⟩ | fail "value"
/-- Step 81 of the loop: operations 1789 … 1810 of the program. -/
abbrev stepOps81 : List (HloOp τ sig (Elt F)) :=
  [ unary main_v3 main_v1624 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1615 main_v1624 main_v1625 (mulf : (⟨S4x256x16, .f32⟩ : BufTy).Contents (Elt F) → (⟨S4x256x16, .f32⟩ : BufTy).Contents (Elt F) → (⟨S4x256x16, .f32⟩ : BufTy).Contents (Elt F)),
    unary main_arg0 main_v1626 ((extractStridedSlice S4x1x256 ![0, 81, 0] · slices_S4x512x256_S4x1x256_0_81_0) : (⟨S4x512x256, .f32⟩ : BufTy).Contents (Elt F) → (⟨S4x1x256, .f32⟩ : BufTy).Contents (Elt F)),
    reshape main_v1626 main_v1627 rfl shapeCasts_S4x1x256_S4x256,
    unary main_v1627 main_v1628 (broadcastInDim S4x256x1 ![0, 1] bcast_S4x256_S4x256x1_0_1 : (⟨S4x256, .f32⟩ : BufTy).Contents (Elt F) → (⟨S4x256x1, .f32⟩ : BufTy).Contents (Elt F)),
    unary main_arg2 main_v1629 ((extractStridedSlice S4x1x16 ![0, 81, 0] · slices_S4x512x16_S4x1x16_0_81_0) : (⟨S4x512x16, .f32⟩ : BufTy).Contents (Elt F) → (⟨S4x1x16, .f32⟩ : BufTy).Contents (Elt F)),
    reshape main_v1629 main_v1630 rfl shapeCasts_S4x1x16_S4x16,
    unary main_v1630 main_v1631 (broadcastInDim S4x1x16 ![0, 2] bcast_S4x16_S4x1x16_0_2 : (⟨S4x16, .f32⟩ : BufTy).Contents (Elt F) → (⟨S4x1x16, .f32⟩ : BufTy).Contents (Elt F)),
    unary main_v1628 main_v1632 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1631 main_v1633 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1632 main_v1633 main_v1634 (mulf : (⟨S4x256x16, .f32⟩ : BufTy).Contents (Elt F) → (⟨S4x256x16, .f32⟩ : BufTy).Contents (Elt F) → (⟨S4x256x16, .f32⟩ : BufTy).Contents (Elt F)),
    binary main_v1625 main_v1634 main_v1635 (addf : (⟨S4x256x16, .f32⟩ : BufTy).Contents (Elt F) → (⟨S4x256x16, .f32⟩ : BufTy).Contents (Elt F) → (⟨S4x256x16, .f32⟩ : BufTy).Contents (Elt F)),
    unary main_arg3 main_v1636 ((extractStridedSlice S4x1x16 ![0, 81, 0] · slices_S4x512x16_S4x1x16_0_81_0) : (⟨S4x512x16, .f32⟩ : BufTy).Contents (Elt F) → (⟨S4x1x16, .f32⟩ : BufTy).Contents (Elt F)),
    reshape main_v1636 main_v1637 rfl shapeCasts_S4x1x16_S4x16,
    unary main_v1637 main_v1638 (broadcastInDim S4x1x16 ![0, 2] bcast_S4x16_S4x1x16_0_2 : (⟨S4x16, .f32⟩ : BufTy).Contents (Elt F) → (⟨S4x1x16, .f32⟩ : BufTy).Contents (Elt F)),
    unary main_v1638 main_v1639 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1635 main_v1639 main_v1640 (mulf : (⟨S4x256x16, .f32⟩ : BufTy).Contents (Elt F) → (⟨S4x256x16, .f32⟩ : BufTy).Contents (Elt F) → (⟨S4x256x16, .f32⟩ : BufTy).Contents (Elt F)),
    nullary main_cst_162 (constant S_ .f32 0x00000000#32),
    binary main_v1640 main_cst_162 main_v1641 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_163 (constantI S_ 32 81#32),
    unary main_c_163 main_v1642 (broadcastInDim S1 ![] bcast_S_S1 : (⟨S_, .i32⟩ : BufTy).Contents (Elt F) → (⟨S1, .i32⟩ : BufTy).Contents (Elt F)),
    ternary main_v1623 main_v1642 main_v1641 main_v1643 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps81_ok : (stepOps81 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step81_val (V : Valuation τ sig (Elt Ideal)) :
    after (stepOps81 (F := Ideal)) V (no_index (Proc.devRef .tc main_v1635)) = stepH 81 (by decide) (V (Proc.devRef .tc main_arg0)) (V (Proc.devRef .tc main_v3)) (V (Proc.devRef .tc main_arg2)) (V (Proc.devRef .tc main_v1615))
    ∧ after (stepOps81 (F := Ideal)) V (no_index (Proc.devRef .tc main_v1643)) = stepY 81 (by decide) (V (Proc.devRef .tc main_arg3)) (stepH 81 (by decide) (V (Proc.devRef .tc main_arg0)) (V (Proc.devRef .tc main_v3)) (V (Proc.devRef .tc main_arg2)) (V (Proc.devRef .tc main_v1615))) (V (Proc.devRef .tc main_v1623)) := by
  simp only [stepOps81]
  after_results_simp
  first | exact ⟨rfl, rfl⟩ | fail "value"
/-- Step 82 of the loop: operations 1811 … 1832 of the program. -/
abbrev stepOps82 : List (HloOp τ sig (Elt F)) :=
  [ unary main_v3 main_v1644 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1635 main_v1644 main_v1645 (mulf : (⟨S4x256x16, .f32⟩ : BufTy).Contents (Elt F) → (⟨S4x256x16, .f32⟩ : BufTy).Contents (Elt F) → (⟨S4x256x16, .f32⟩ : BufTy).Contents (Elt F)),
    unary main_arg0 main_v1646 ((extractStridedSlice S4x1x256 ![0, 82, 0] · slices_S4x512x256_S4x1x256_0_82_0) : (⟨S4x512x256, .f32⟩ : BufTy).Contents (Elt F) → (⟨S4x1x256, .f32⟩ : BufTy).Contents (Elt F)),
    reshape main_v1646 main_v1647 rfl shapeCasts_S4x1x256_S4x256,
    unary main_v1647 main_v1648 (broadcastInDim S4x256x1 ![0, 1] bcast_S4x256_S4x256x1_0_1 : (⟨S4x256, .f32⟩ : BufTy).Contents (Elt F) → (⟨S4x256x1, .f32⟩ : BufTy).Contents (Elt F)),
    unary main_arg2 main_v1649 ((extractStridedSlice S4x1x16 ![0, 82, 0] · slices_S4x512x16_S4x1x16_0_82_0) : (⟨S4x512x16, .f32⟩ : BufTy).Contents (Elt F) → (⟨S4x1x16, .f32⟩ : BufTy).Contents (Elt F)),
    reshape main_v1649 main_v1650 rfl shapeCasts_S4x1x16_S4x16,
    unary main_v1650 main_v1651 (broadcastInDim S4x1x16 ![0, 2] bcast_S4x16_S4x1x16_0_2 : (⟨S4x16, .f32⟩ : BufTy).Contents (Elt F) → (⟨S4x1x16, .f32⟩ : BufTy).Contents (Elt F)),
    unary main_v1648 main_v1652 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1651 main_v1653 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1652 main_v1653 main_v1654 (mulf : (⟨S4x256x16, .f32⟩ : BufTy).Contents (Elt F) → (⟨S4x256x16, .f32⟩ : BufTy).Contents (Elt F) → (⟨S4x256x16, .f32⟩ : BufTy).Contents (Elt F)),
    binary main_v1645 main_v1654 main_v1655 (addf : (⟨S4x256x16, .f32⟩ : BufTy).Contents (Elt F) → (⟨S4x256x16, .f32⟩ : BufTy).Contents (Elt F) → (⟨S4x256x16, .f32⟩ : BufTy).Contents (Elt F)),
    unary main_arg3 main_v1656 ((extractStridedSlice S4x1x16 ![0, 82, 0] · slices_S4x512x16_S4x1x16_0_82_0) : (⟨S4x512x16, .f32⟩ : BufTy).Contents (Elt F) → (⟨S4x1x16, .f32⟩ : BufTy).Contents (Elt F)),
    reshape main_v1656 main_v1657 rfl shapeCasts_S4x1x16_S4x16,
    unary main_v1657 main_v1658 (broadcastInDim S4x1x16 ![0, 2] bcast_S4x16_S4x1x16_0_2 : (⟨S4x16, .f32⟩ : BufTy).Contents (Elt F) → (⟨S4x1x16, .f32⟩ : BufTy).Contents (Elt F)),
    unary main_v1658 main_v1659 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1655 main_v1659 main_v1660 (mulf : (⟨S4x256x16, .f32⟩ : BufTy).Contents (Elt F) → (⟨S4x256x16, .f32⟩ : BufTy).Contents (Elt F) → (⟨S4x256x16, .f32⟩ : BufTy).Contents (Elt F)),
    nullary main_cst_164 (constant S_ .f32 0x00000000#32),
    binary main_v1660 main_cst_164 main_v1661 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_165 (constantI S_ 32 82#32),
    unary main_c_165 main_v1662 (broadcastInDim S1 ![] bcast_S_S1 : (⟨S_, .i32⟩ : BufTy).Contents (Elt F) → (⟨S1, .i32⟩ : BufTy).Contents (Elt F)),
    ternary main_v1643 main_v1662 main_v1661 main_v1663 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps82_ok : (stepOps82 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step82_val (V : Valuation τ sig (Elt Ideal)) :
    after (stepOps82 (F := Ideal)) V (no_index (Proc.devRef .tc main_v1655)) = stepH 82 (by decide) (V (Proc.devRef .tc main_arg0)) (V (Proc.devRef .tc main_v3)) (V (Proc.devRef .tc main_arg2)) (V (Proc.devRef .tc main_v1635))
    ∧ after (stepOps82 (F := Ideal)) V (no_index (Proc.devRef .tc main_v1663)) = stepY 82 (by decide) (V (Proc.devRef .tc main_arg3)) (stepH 82 (by decide) (V (Proc.devRef .tc main_arg0)) (V (Proc.devRef .tc main_v3)) (V (Proc.devRef .tc main_arg2)) (V (Proc.devRef .tc main_v1635))) (V (Proc.devRef .tc main_v1643)) := by
  simp only [stepOps82]
  after_results_simp
  first | exact ⟨rfl, rfl⟩ | fail "value"
/-- Step 83 of the loop: operations 1833 … 1854 of the program. -/
abbrev stepOps83 : List (HloOp τ sig (Elt F)) :=
  [ unary main_v3 main_v1664 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1655 main_v1664 main_v1665 (mulf : (⟨S4x256x16, .f32⟩ : BufTy).Contents (Elt F) → (⟨S4x256x16, .f32⟩ : BufTy).Contents (Elt F) → (⟨S4x256x16, .f32⟩ : BufTy).Contents (Elt F)),
    unary main_arg0 main_v1666 ((extractStridedSlice S4x1x256 ![0, 83, 0] · slices_S4x512x256_S4x1x256_0_83_0) : (⟨S4x512x256, .f32⟩ : BufTy).Contents (Elt F) → (⟨S4x1x256, .f32⟩ : BufTy).Contents (Elt F)),
    reshape main_v1666 main_v1667 rfl shapeCasts_S4x1x256_S4x256,
    unary main_v1667 main_v1668 (broadcastInDim S4x256x1 ![0, 1] bcast_S4x256_S4x256x1_0_1 : (⟨S4x256, .f32⟩ : BufTy).Contents (Elt F) → (⟨S4x256x1, .f32⟩ : BufTy).Contents (Elt F)),
    unary main_arg2 main_v1669 ((extractStridedSlice S4x1x16 ![0, 83, 0] · slices_S4x512x16_S4x1x16_0_83_0) : (⟨S4x512x16, .f32⟩ : BufTy).Contents (Elt F) → (⟨S4x1x16, .f32⟩ : BufTy).Contents (Elt F)),
    reshape main_v1669 main_v1670 rfl shapeCasts_S4x1x16_S4x16,
    unary main_v1670 main_v1671 (broadcastInDim S4x1x16 ![0, 2] bcast_S4x16_S4x1x16_0_2 : (⟨S4x16, .f32⟩ : BufTy).Contents (Elt F) → (⟨S4x1x16, .f32⟩ : BufTy).Contents (Elt F)),
    unary main_v1668 main_v1672 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1671 main_v1673 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1672 main_v1673 main_v1674 (mulf : (⟨S4x256x16, .f32⟩ : BufTy).Contents (Elt F) → (⟨S4x256x16, .f32⟩ : BufTy).Contents (Elt F) → (⟨S4x256x16, .f32⟩ : BufTy).Contents (Elt F)),
    binary main_v1665 main_v1674 main_v1675 (addf : (⟨S4x256x16, .f32⟩ : BufTy).Contents (Elt F) → (⟨S4x256x16, .f32⟩ : BufTy).Contents (Elt F) → (⟨S4x256x16, .f32⟩ : BufTy).Contents (Elt F)),
    unary main_arg3 main_v1676 ((extractStridedSlice S4x1x16 ![0, 83, 0] · slices_S4x512x16_S4x1x16_0_83_0) : (⟨S4x512x16, .f32⟩ : BufTy).Contents (Elt F) → (⟨S4x1x16, .f32⟩ : BufTy).Contents (Elt F)),
    reshape main_v1676 main_v1677 rfl shapeCasts_S4x1x16_S4x16,
    unary main_v1677 main_v1678 (broadcastInDim S4x1x16 ![0, 2] bcast_S4x16_S4x1x16_0_2 : (⟨S4x16, .f32⟩ : BufTy).Contents (Elt F) → (⟨S4x1x16, .f32⟩ : BufTy).Contents (Elt F)),
    unary main_v1678 main_v1679 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1675 main_v1679 main_v1680 (mulf : (⟨S4x256x16, .f32⟩ : BufTy).Contents (Elt F) → (⟨S4x256x16, .f32⟩ : BufTy).Contents (Elt F) → (⟨S4x256x16, .f32⟩ : BufTy).Contents (Elt F)),
    nullary main_cst_166 (constant S_ .f32 0x00000000#32),
    binary main_v1680 main_cst_166 main_v1681 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_167 (constantI S_ 32 83#32),
    unary main_c_167 main_v1682 (broadcastInDim S1 ![] bcast_S_S1 : (⟨S_, .i32⟩ : BufTy).Contents (Elt F) → (⟨S1, .i32⟩ : BufTy).Contents (Elt F)),
    ternary main_v1663 main_v1682 main_v1681 main_v1683 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps83_ok : (stepOps83 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step83_val (V : Valuation τ sig (Elt Ideal)) :
    after (stepOps83 (F := Ideal)) V (no_index (Proc.devRef .tc main_v1675)) = stepH 83 (by decide) (V (Proc.devRef .tc main_arg0)) (V (Proc.devRef .tc main_v3)) (V (Proc.devRef .tc main_arg2)) (V (Proc.devRef .tc main_v1655))
    ∧ after (stepOps83 (F := Ideal)) V (no_index (Proc.devRef .tc main_v1683)) = stepY 83 (by decide) (V (Proc.devRef .tc main_arg3)) (stepH 83 (by decide) (V (Proc.devRef .tc main_arg0)) (V (Proc.devRef .tc main_v3)) (V (Proc.devRef .tc main_arg2)) (V (Proc.devRef .tc main_v1655))) (V (Proc.devRef .tc main_v1663)) := by
  simp only [stepOps83]
  after_results_simp
  first | exact ⟨rfl, rfl⟩ | fail "value"
/-- Step 84 of the loop: operations 1855 … 1876 of the program. -/
abbrev stepOps84 : List (HloOp τ sig (Elt F)) :=
  [ unary main_v3 main_v1684 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1675 main_v1684 main_v1685 (mulf : (⟨S4x256x16, .f32⟩ : BufTy).Contents (Elt F) → (⟨S4x256x16, .f32⟩ : BufTy).Contents (Elt F) → (⟨S4x256x16, .f32⟩ : BufTy).Contents (Elt F)),
    unary main_arg0 main_v1686 ((extractStridedSlice S4x1x256 ![0, 84, 0] · slices_S4x512x256_S4x1x256_0_84_0) : (⟨S4x512x256, .f32⟩ : BufTy).Contents (Elt F) → (⟨S4x1x256, .f32⟩ : BufTy).Contents (Elt F)),
    reshape main_v1686 main_v1687 rfl shapeCasts_S4x1x256_S4x256,
    unary main_v1687 main_v1688 (broadcastInDim S4x256x1 ![0, 1] bcast_S4x256_S4x256x1_0_1 : (⟨S4x256, .f32⟩ : BufTy).Contents (Elt F) → (⟨S4x256x1, .f32⟩ : BufTy).Contents (Elt F)),
    unary main_arg2 main_v1689 ((extractStridedSlice S4x1x16 ![0, 84, 0] · slices_S4x512x16_S4x1x16_0_84_0) : (⟨S4x512x16, .f32⟩ : BufTy).Contents (Elt F) → (⟨S4x1x16, .f32⟩ : BufTy).Contents (Elt F)),
    reshape main_v1689 main_v1690 rfl shapeCasts_S4x1x16_S4x16,
    unary main_v1690 main_v1691 (broadcastInDim S4x1x16 ![0, 2] bcast_S4x16_S4x1x16_0_2 : (⟨S4x16, .f32⟩ : BufTy).Contents (Elt F) → (⟨S4x1x16, .f32⟩ : BufTy).Contents (Elt F)),
    unary main_v1688 main_v1692 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1691 main_v1693 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1692 main_v1693 main_v1694 (mulf : (⟨S4x256x16, .f32⟩ : BufTy).Contents (Elt F) → (⟨S4x256x16, .f32⟩ : BufTy).Contents (Elt F) → (⟨S4x256x16, .f32⟩ : BufTy).Contents (Elt F)),
    binary main_v1685 main_v1694 main_v1695 (addf : (⟨S4x256x16, .f32⟩ : BufTy).Contents (Elt F) → (⟨S4x256x16, .f32⟩ : BufTy).Contents (Elt F) → (⟨S4x256x16, .f32⟩ : BufTy).Contents (Elt F)),
    unary main_arg3 main_v1696 ((extractStridedSlice S4x1x16 ![0, 84, 0] · slices_S4x512x16_S4x1x16_0_84_0) : (⟨S4x512x16, .f32⟩ : BufTy).Contents (Elt F) → (⟨S4x1x16, .f32⟩ : BufTy).Contents (Elt F)),
    reshape main_v1696 main_v1697 rfl shapeCasts_S4x1x16_S4x16,
    unary main_v1697 main_v1698 (broadcastInDim S4x1x16 ![0, 2] bcast_S4x16_S4x1x16_0_2 : (⟨S4x16, .f32⟩ : BufTy).Contents (Elt F) → (⟨S4x1x16, .f32⟩ : BufTy).Contents (Elt F)),
    unary main_v1698 main_v1699 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1695 main_v1699 main_v1700 (mulf : (⟨S4x256x16, .f32⟩ : BufTy).Contents (Elt F) → (⟨S4x256x16, .f32⟩ : BufTy).Contents (Elt F) → (⟨S4x256x16, .f32⟩ : BufTy).Contents (Elt F)),
    nullary main_cst_168 (constant S_ .f32 0x00000000#32),
    binary main_v1700 main_cst_168 main_v1701 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_169 (constantI S_ 32 84#32),
    unary main_c_169 main_v1702 (broadcastInDim S1 ![] bcast_S_S1 : (⟨S_, .i32⟩ : BufTy).Contents (Elt F) → (⟨S1, .i32⟩ : BufTy).Contents (Elt F)),
    ternary main_v1683 main_v1702 main_v1701 main_v1703 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps84_ok : (stepOps84 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step84_val (V : Valuation τ sig (Elt Ideal)) :
    after (stepOps84 (F := Ideal)) V (no_index (Proc.devRef .tc main_v1695)) = stepH 84 (by decide) (V (Proc.devRef .tc main_arg0)) (V (Proc.devRef .tc main_v3)) (V (Proc.devRef .tc main_arg2)) (V (Proc.devRef .tc main_v1675))
    ∧ after (stepOps84 (F := Ideal)) V (no_index (Proc.devRef .tc main_v1703)) = stepY 84 (by decide) (V (Proc.devRef .tc main_arg3)) (stepH 84 (by decide) (V (Proc.devRef .tc main_arg0)) (V (Proc.devRef .tc main_v3)) (V (Proc.devRef .tc main_arg2)) (V (Proc.devRef .tc main_v1675))) (V (Proc.devRef .tc main_v1683)) := by
  simp only [stepOps84]
  after_results_simp
  first | exact ⟨rfl, rfl⟩ | fail "value"
/-- Step 85 of the loop: operations 1877 … 1898 of the program. -/
abbrev stepOps85 : List (HloOp τ sig (Elt F)) :=
  [ unary main_v3 main_v1704 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1695 main_v1704 main_v1705 (mulf : (⟨S4x256x16, .f32⟩ : BufTy).Contents (Elt F) → (⟨S4x256x16, .f32⟩ : BufTy).Contents (Elt F) → (⟨S4x256x16, .f32⟩ : BufTy).Contents (Elt F)),
    unary main_arg0 main_v1706 ((extractStridedSlice S4x1x256 ![0, 85, 0] · slices_S4x512x256_S4x1x256_0_85_0) : (⟨S4x512x256, .f32⟩ : BufTy).Contents (Elt F) → (⟨S4x1x256, .f32⟩ : BufTy).Contents (Elt F)),
    reshape main_v1706 main_v1707 rfl shapeCasts_S4x1x256_S4x256,
    unary main_v1707 main_v1708 (broadcastInDim S4x256x1 ![0, 1] bcast_S4x256_S4x256x1_0_1 : (⟨S4x256, .f32⟩ : BufTy).Contents (Elt F) → (⟨S4x256x1, .f32⟩ : BufTy).Contents (Elt F)),
    unary main_arg2 main_v1709 ((extractStridedSlice S4x1x16 ![0, 85, 0] · slices_S4x512x16_S4x1x16_0_85_0) : (⟨S4x512x16, .f32⟩ : BufTy).Contents (Elt F) → (⟨S4x1x16, .f32⟩ : BufTy).Contents (Elt F)),
    reshape main_v1709 main_v1710 rfl shapeCasts_S4x1x16_S4x16,
    unary main_v1710 main_v1711 (broadcastInDim S4x1x16 ![0, 2] bcast_S4x16_S4x1x16_0_2 : (⟨S4x16, .f32⟩ : BufTy).Contents (Elt F) → (⟨S4x1x16, .f32⟩ : BufTy).Contents (Elt F)),
    unary main_v1708 main_v1712 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1711 main_v1713 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1712 main_v1713 main_v1714 (mulf : (⟨S4x256x16, .f32⟩ : BufTy).Contents (Elt F) → (⟨S4x256x16, .f32⟩ : BufTy).Contents (Elt F) → (⟨S4x256x16, .f32⟩ : BufTy).Contents (Elt F)),
    binary main_v1705 main_v1714 main_v1715 (addf : (⟨S4x256x16, .f32⟩ : BufTy).Contents (Elt F) → (⟨S4x256x16, .f32⟩ : BufTy).Contents (Elt F) → (⟨S4x256x16, .f32⟩ : BufTy).Contents (Elt F)),
    unary main_arg3 main_v1716 ((extractStridedSlice S4x1x16 ![0, 85, 0] · slices_S4x512x16_S4x1x16_0_85_0) : (⟨S4x512x16, .f32⟩ : BufTy).Contents (Elt F) → (⟨S4x1x16, .f32⟩ : BufTy).Contents (Elt F)),
    reshape main_v1716 main_v1717 rfl shapeCasts_S4x1x16_S4x16,
    unary main_v1717 main_v1718 (broadcastInDim S4x1x16 ![0, 2] bcast_S4x16_S4x1x16_0_2 : (⟨S4x16, .f32⟩ : BufTy).Contents (Elt F) → (⟨S4x1x16, .f32⟩ : BufTy).Contents (Elt F)),
    unary main_v1718 main_v1719 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1715 main_v1719 main_v1720 (mulf : (⟨S4x256x16, .f32⟩ : BufTy).Contents (Elt F) → (⟨S4x256x16, .f32⟩ : BufTy).Contents (Elt F) → (⟨S4x256x16, .f32⟩ : BufTy).Contents (Elt F)),
    nullary main_cst_170 (constant S_ .f32 0x00000000#32),
    binary main_v1720 main_cst_170 main_v1721 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_171 (constantI S_ 32 85#32),
    unary main_c_171 main_v1722 (broadcastInDim S1 ![] bcast_S_S1 : (⟨S_, .i32⟩ : BufTy).Contents (Elt F) → (⟨S1, .i32⟩ : BufTy).Contents (Elt F)),
    ternary main_v1703 main_v1722 main_v1721 main_v1723 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps85_ok : (stepOps85 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step85_val (V : Valuation τ sig (Elt Ideal)) :
    after (stepOps85 (F := Ideal)) V (no_index (Proc.devRef .tc main_v1715)) = stepH 85 (by decide) (V (Proc.devRef .tc main_arg0)) (V (Proc.devRef .tc main_v3)) (V (Proc.devRef .tc main_arg2)) (V (Proc.devRef .tc main_v1695))
    ∧ after (stepOps85 (F := Ideal)) V (no_index (Proc.devRef .tc main_v1723)) = stepY 85 (by decide) (V (Proc.devRef .tc main_arg3)) (stepH 85 (by decide) (V (Proc.devRef .tc main_arg0)) (V (Proc.devRef .tc main_v3)) (V (Proc.devRef .tc main_arg2)) (V (Proc.devRef .tc main_v1695))) (V (Proc.devRef .tc main_v1703)) := by
  simp only [stepOps85]
  after_results_simp
  first | exact ⟨rfl, rfl⟩ | fail "value"
/-- Step 86 of the loop: operations 1899 … 1920 of the program. -/
abbrev stepOps86 : List (HloOp τ sig (Elt F)) :=
  [ unary main_v3 main_v1724 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1715 main_v1724 main_v1725 (mulf : (⟨S4x256x16, .f32⟩ : BufTy).Contents (Elt F) → (⟨S4x256x16, .f32⟩ : BufTy).Contents (Elt F) → (⟨S4x256x16, .f32⟩ : BufTy).Contents (Elt F)),
    unary main_arg0 main_v1726 ((extractStridedSlice S4x1x256 ![0, 86, 0] · slices_S4x512x256_S4x1x256_0_86_0) : (⟨S4x512x256, .f32⟩ : BufTy).Contents (Elt F) → (⟨S4x1x256, .f32⟩ : BufTy).Contents (Elt F)),
    reshape main_v1726 main_v1727 rfl shapeCasts_S4x1x256_S4x256,
    unary main_v1727 main_v1728 (broadcastInDim S4x256x1 ![0, 1] bcast_S4x256_S4x256x1_0_1 : (⟨S4x256, .f32⟩ : BufTy).Contents (Elt F) → (⟨S4x256x1, .f32⟩ : BufTy).Contents (Elt F)),
    unary main_arg2 main_v1729 ((extractStridedSlice S4x1x16 ![0, 86, 0] · slices_S4x512x16_S4x1x16_0_86_0) : (⟨S4x512x16, .f32⟩ : BufTy).Contents (Elt F) → (⟨S4x1x16, .f32⟩ : BufTy).Contents (Elt F)),
    reshape main_v1729 main_v1730 rfl shapeCasts_S4x1x16_S4x16,
    unary main_v1730 main_v1731 (broadcastInDim S4x1x16 ![0, 2] bcast_S4x16_S4x1x16_0_2 : (⟨S4x16, .f32⟩ : BufTy).Contents (Elt F) → (⟨S4x1x16, .f32⟩ : BufTy).Contents (Elt F)),
    unary main_v1728 main_v1732 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1731 main_v1733 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1732 main_v1733 main_v1734 (mulf : (⟨S4x256x16, .f32⟩ : BufTy).Contents (Elt F) → (⟨S4x256x16, .f32⟩ : BufTy).Contents (Elt F) → (⟨S4x256x16, .f32⟩ : BufTy).Contents (Elt F)),
    binary main_v1725 main_v1734 main_v1735 (addf : (⟨S4x256x16, .f32⟩ : BufTy).Contents (Elt F) → (⟨S4x256x16, .f32⟩ : BufTy).Contents (Elt F) → (⟨S4x256x16, .f32⟩ : BufTy).Contents (Elt F)),
    unary main_arg3 main_v1736 ((extractStridedSlice S4x1x16 ![0, 86, 0] · slices_S4x512x16_S4x1x16_0_86_0) : (⟨S4x512x16, .f32⟩ : BufTy).Contents (Elt F) → (⟨S4x1x16, .f32⟩ : BufTy).Contents (Elt F)),
    reshape main_v1736 main_v1737 rfl shapeCasts_S4x1x16_S4x16,
    unary main_v1737 main_v1738 (broadcastInDim S4x1x16 ![0, 2] bcast_S4x16_S4x1x16_0_2 : (⟨S4x16, .f32⟩ : BufTy).Contents (Elt F) → (⟨S4x1x16, .f32⟩ : BufTy).Contents (Elt F)),
    unary main_v1738 main_v1739 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1735 main_v1739 main_v1740 (mulf : (⟨S4x256x16, .f32⟩ : BufTy).Contents (Elt F) → (⟨S4x256x16, .f32⟩ : BufTy).Contents (Elt F) → (⟨S4x256x16, .f32⟩ : BufTy).Contents (Elt F)),
    nullary main_cst_172 (constant S_ .f32 0x00000000#32),
    binary main_v1740 main_cst_172 main_v1741 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_173 (constantI S_ 32 86#32),
    unary main_c_173 main_v1742 (broadcastInDim S1 ![] bcast_S_S1 : (⟨S_, .i32⟩ : BufTy).Contents (Elt F) → (⟨S1, .i32⟩ : BufTy).Contents (Elt F)),
    ternary main_v1723 main_v1742 main_v1741 main_v1743 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps86_ok : (stepOps86 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step86_val (V : Valuation τ sig (Elt Ideal)) :
    after (stepOps86 (F := Ideal)) V (no_index (Proc.devRef .tc main_v1735)) = stepH 86 (by decide) (V (Proc.devRef .tc main_arg0)) (V (Proc.devRef .tc main_v3)) (V (Proc.devRef .tc main_arg2)) (V (Proc.devRef .tc main_v1715))
    ∧ after (stepOps86 (F := Ideal)) V (no_index (Proc.devRef .tc main_v1743)) = stepY 86 (by decide) (V (Proc.devRef .tc main_arg3)) (stepH 86 (by decide) (V (Proc.devRef .tc main_arg0)) (V (Proc.devRef .tc main_v3)) (V (Proc.devRef .tc main_arg2)) (V (Proc.devRef .tc main_v1715))) (V (Proc.devRef .tc main_v1723)) := by
  simp only [stepOps86]
  after_results_simp
  first | exact ⟨rfl, rfl⟩ | fail "value"
/-- Step 87 of the loop: operations 1921 … 1942 of the program. -/
abbrev stepOps87 : List (HloOp τ sig (Elt F)) :=
  [ unary main_v3 main_v1744 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1735 main_v1744 main_v1745 (mulf : (⟨S4x256x16, .f32⟩ : BufTy).Contents (Elt F) → (⟨S4x256x16, .f32⟩ : BufTy).Contents (Elt F) → (⟨S4x256x16, .f32⟩ : BufTy).Contents (Elt F)),
    unary main_arg0 main_v1746 ((extractStridedSlice S4x1x256 ![0, 87, 0] · slices_S4x512x256_S4x1x256_0_87_0) : (⟨S4x512x256, .f32⟩ : BufTy).Contents (Elt F) → (⟨S4x1x256, .f32⟩ : BufTy).Contents (Elt F)),
    reshape main_v1746 main_v1747 rfl shapeCasts_S4x1x256_S4x256,
    unary main_v1747 main_v1748 (broadcastInDim S4x256x1 ![0, 1] bcast_S4x256_S4x256x1_0_1 : (⟨S4x256, .f32⟩ : BufTy).Contents (Elt F) → (⟨S4x256x1, .f32⟩ : BufTy).Contents (Elt F)),
    unary main_arg2 main_v1749 ((extractStridedSlice S4x1x16 ![0, 87, 0] · slices_S4x512x16_S4x1x16_0_87_0) : (⟨S4x512x16, .f32⟩ : BufTy).Contents (Elt F) → (⟨S4x1x16, .f32⟩ : BufTy).Contents (Elt F)),
    reshape main_v1749 main_v1750 rfl shapeCasts_S4x1x16_S4x16,
    unary main_v1750 main_v1751 (broadcastInDim S4x1x16 ![0, 2] bcast_S4x16_S4x1x16_0_2 : (⟨S4x16, .f32⟩ : BufTy).Contents (Elt F) → (⟨S4x1x16, .f32⟩ : BufTy).Contents (Elt F)),
    unary main_v1748 main_v1752 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1751 main_v1753 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1752 main_v1753 main_v1754 (mulf : (⟨S4x256x16, .f32⟩ : BufTy).Contents (Elt F) → (⟨S4x256x16, .f32⟩ : BufTy).Contents (Elt F) → (⟨S4x256x16, .f32⟩ : BufTy).Contents (Elt F)),
    binary main_v1745 main_v1754 main_v1755 (addf : (⟨S4x256x16, .f32⟩ : BufTy).Contents (Elt F) → (⟨S4x256x16, .f32⟩ : BufTy).Contents (Elt F) → (⟨S4x256x16, .f32⟩ : BufTy).Contents (Elt F)),
    unary main_arg3 main_v1756 ((extractStridedSlice S4x1x16 ![0, 87, 0] · slices_S4x512x16_S4x1x16_0_87_0) : (⟨S4x512x16, .f32⟩ : BufTy).Contents (Elt F) → (⟨S4x1x16, .f32⟩ : BufTy).Contents (Elt F)),
    reshape main_v1756 main_v1757 rfl shapeCasts_S4x1x16_S4x16,
    unary main_v1757 main_v1758 (broadcastInDim S4x1x16 ![0, 2] bcast_S4x16_S4x1x16_0_2 : (⟨S4x16, .f32⟩ : BufTy).Contents (Elt F) → (⟨S4x1x16, .f32⟩ : BufTy).Contents (Elt F)),
    unary main_v1758 main_v1759 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1755 main_v1759 main_v1760 (mulf : (⟨S4x256x16, .f32⟩ : BufTy).Contents (Elt F) → (⟨S4x256x16, .f32⟩ : BufTy).Contents (Elt F) → (⟨S4x256x16, .f32⟩ : BufTy).Contents (Elt F)),
    nullary main_cst_174 (constant S_ .f32 0x00000000#32),
    binary main_v1760 main_cst_174 main_v1761 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_175 (constantI S_ 32 87#32),
    unary main_c_175 main_v1762 (broadcastInDim S1 ![] bcast_S_S1 : (⟨S_, .i32⟩ : BufTy).Contents (Elt F) → (⟨S1, .i32⟩ : BufTy).Contents (Elt F)),
    ternary main_v1743 main_v1762 main_v1761 main_v1763 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps87_ok : (stepOps87 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step87_val (V : Valuation τ sig (Elt Ideal)) :
    after (stepOps87 (F := Ideal)) V (no_index (Proc.devRef .tc main_v1755)) = stepH 87 (by decide) (V (Proc.devRef .tc main_arg0)) (V (Proc.devRef .tc main_v3)) (V (Proc.devRef .tc main_arg2)) (V (Proc.devRef .tc main_v1735))
    ∧ after (stepOps87 (F := Ideal)) V (no_index (Proc.devRef .tc main_v1763)) = stepY 87 (by decide) (V (Proc.devRef .tc main_arg3)) (stepH 87 (by decide) (V (Proc.devRef .tc main_arg0)) (V (Proc.devRef .tc main_v3)) (V (Proc.devRef .tc main_arg2)) (V (Proc.devRef .tc main_v1735))) (V (Proc.devRef .tc main_v1743)) := by
  simp only [stepOps87]
  after_results_simp
  first | exact ⟨rfl, rfl⟩ | fail "value"
/-- Step 88 of the loop: operations 1943 … 1964 of the program. -/
abbrev stepOps88 : List (HloOp τ sig (Elt F)) :=
  [ unary main_v3 main_v1764 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1755 main_v1764 main_v1765 (mulf : (⟨S4x256x16, .f32⟩ : BufTy).Contents (Elt F) → (⟨S4x256x16, .f32⟩ : BufTy).Contents (Elt F) → (⟨S4x256x16, .f32⟩ : BufTy).Contents (Elt F)),
    unary main_arg0 main_v1766 ((extractStridedSlice S4x1x256 ![0, 88, 0] · slices_S4x512x256_S4x1x256_0_88_0) : (⟨S4x512x256, .f32⟩ : BufTy).Contents (Elt F) → (⟨S4x1x256, .f32⟩ : BufTy).Contents (Elt F)),
    reshape main_v1766 main_v1767 rfl shapeCasts_S4x1x256_S4x256,
    unary main_v1767 main_v1768 (broadcastInDim S4x256x1 ![0, 1] bcast_S4x256_S4x256x1_0_1 : (⟨S4x256, .f32⟩ : BufTy).Contents (Elt F) → (⟨S4x256x1, .f32⟩ : BufTy).Contents (Elt F)),
    unary main_arg2 main_v1769 ((extractStridedSlice S4x1x16 ![0, 88, 0] · slices_S4x512x16_S4x1x16_0_88_0) : (⟨S4x512x16, .f32⟩ : BufTy).Contents (Elt F) → (⟨S4x1x16, .f32⟩ : BufTy).Contents (Elt F)),
    reshape main_v1769 main_v1770 rfl shapeCasts_S4x1x16_S4x16,
    unary main_v1770 main_v1771 (broadcastInDim S4x1x16 ![0, 2] bcast_S4x16_S4x1x16_0_2 : (⟨S4x16, .f32⟩ : BufTy).Contents (Elt F) → (⟨S4x1x16, .f32⟩ : BufTy).Contents (Elt F)),
    unary main_v1768 main_v1772 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1771 main_v1773 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1772 main_v1773 main_v1774 (mulf : (⟨S4x256x16, .f32⟩ : BufTy).Contents (Elt F) → (⟨S4x256x16, .f32⟩ : BufTy).Contents (Elt F) → (⟨S4x256x16, .f32⟩ : BufTy).Contents (Elt F)),
    binary main_v1765 main_v1774 main_v1775 (addf : (⟨S4x256x16, .f32⟩ : BufTy).Contents (Elt F) → (⟨S4x256x16, .f32⟩ : BufTy).Contents (Elt F) → (⟨S4x256x16, .f32⟩ : BufTy).Contents (Elt F)),
    unary main_arg3 main_v1776 ((extractStridedSlice S4x1x16 ![0, 88, 0] · slices_S4x512x16_S4x1x16_0_88_0) : (⟨S4x512x16, .f32⟩ : BufTy).Contents (Elt F) → (⟨S4x1x16, .f32⟩ : BufTy).Contents (Elt F)),
    reshape main_v1776 main_v1777 rfl shapeCasts_S4x1x16_S4x16,
    unary main_v1777 main_v1778 (broadcastInDim S4x1x16 ![0, 2] bcast_S4x16_S4x1x16_0_2 : (⟨S4x16, .f32⟩ : BufTy).Contents (Elt F) → (⟨S4x1x16, .f32⟩ : BufTy).Contents (Elt F)),
    unary main_v1778 main_v1779 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1775 main_v1779 main_v1780 (mulf : (⟨S4x256x16, .f32⟩ : BufTy).Contents (Elt F) → (⟨S4x256x16, .f32⟩ : BufTy).Contents (Elt F) → (⟨S4x256x16, .f32⟩ : BufTy).Contents (Elt F)),
    nullary main_cst_176 (constant S_ .f32 0x00000000#32),
    binary main_v1780 main_cst_176 main_v1781 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_177 (constantI S_ 32 88#32),
    unary main_c_177 main_v1782 (broadcastInDim S1 ![] bcast_S_S1 : (⟨S_, .i32⟩ : BufTy).Contents (Elt F) → (⟨S1, .i32⟩ : BufTy).Contents (Elt F)),
    ternary main_v1763 main_v1782 main_v1781 main_v1783 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps88_ok : (stepOps88 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step88_val (V : Valuation τ sig (Elt Ideal)) :
    after (stepOps88 (F := Ideal)) V (no_index (Proc.devRef .tc main_v1775)) = stepH 88 (by decide) (V (Proc.devRef .tc main_arg0)) (V (Proc.devRef .tc main_v3)) (V (Proc.devRef .tc main_arg2)) (V (Proc.devRef .tc main_v1755))
    ∧ after (stepOps88 (F := Ideal)) V (no_index (Proc.devRef .tc main_v1783)) = stepY 88 (by decide) (V (Proc.devRef .tc main_arg3)) (stepH 88 (by decide) (V (Proc.devRef .tc main_arg0)) (V (Proc.devRef .tc main_v3)) (V (Proc.devRef .tc main_arg2)) (V (Proc.devRef .tc main_v1755))) (V (Proc.devRef .tc main_v1763)) := by
  simp only [stepOps88]
  after_results_simp
  first | exact ⟨rfl, rfl⟩ | fail "value"
/-- Step 89 of the loop: operations 1965 … 1986 of the program. -/
abbrev stepOps89 : List (HloOp τ sig (Elt F)) :=
  [ unary main_v3 main_v1784 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1775 main_v1784 main_v1785 (mulf : (⟨S4x256x16, .f32⟩ : BufTy).Contents (Elt F) → (⟨S4x256x16, .f32⟩ : BufTy).Contents (Elt F) → (⟨S4x256x16, .f32⟩ : BufTy).Contents (Elt F)),
    unary main_arg0 main_v1786 ((extractStridedSlice S4x1x256 ![0, 89, 0] · slices_S4x512x256_S4x1x256_0_89_0) : (⟨S4x512x256, .f32⟩ : BufTy).Contents (Elt F) → (⟨S4x1x256, .f32⟩ : BufTy).Contents (Elt F)),
    reshape main_v1786 main_v1787 rfl shapeCasts_S4x1x256_S4x256,
    unary main_v1787 main_v1788 (broadcastInDim S4x256x1 ![0, 1] bcast_S4x256_S4x256x1_0_1 : (⟨S4x256, .f32⟩ : BufTy).Contents (Elt F) → (⟨S4x256x1, .f32⟩ : BufTy).Contents (Elt F)),
    unary main_arg2 main_v1789 ((extractStridedSlice S4x1x16 ![0, 89, 0] · slices_S4x512x16_S4x1x16_0_89_0) : (⟨S4x512x16, .f32⟩ : BufTy).Contents (Elt F) → (⟨S4x1x16, .f32⟩ : BufTy).Contents (Elt F)),
    reshape main_v1789 main_v1790 rfl shapeCasts_S4x1x16_S4x16,
    unary main_v1790 main_v1791 (broadcastInDim S4x1x16 ![0, 2] bcast_S4x16_S4x1x16_0_2 : (⟨S4x16, .f32⟩ : BufTy).Contents (Elt F) → (⟨S4x1x16, .f32⟩ : BufTy).Contents (Elt F)),
    unary main_v1788 main_v1792 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1791 main_v1793 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1792 main_v1793 main_v1794 (mulf : (⟨S4x256x16, .f32⟩ : BufTy).Contents (Elt F) → (⟨S4x256x16, .f32⟩ : BufTy).Contents (Elt F) → (⟨S4x256x16, .f32⟩ : BufTy).Contents (Elt F)),
    binary main_v1785 main_v1794 main_v1795 (addf : (⟨S4x256x16, .f32⟩ : BufTy).Contents (Elt F) → (⟨S4x256x16, .f32⟩ : BufTy).Contents (Elt F) → (⟨S4x256x16, .f32⟩ : BufTy).Contents (Elt F)),
    unary main_arg3 main_v1796 ((extractStridedSlice S4x1x16 ![0, 89, 0] · slices_S4x512x16_S4x1x16_0_89_0) : (⟨S4x512x16, .f32⟩ : BufTy).Contents (Elt F) → (⟨S4x1x16, .f32⟩ : BufTy).Contents (Elt F)),
    reshape main_v1796 main_v1797 rfl shapeCasts_S4x1x16_S4x16,
    unary main_v1797 main_v1798 (broadcastInDim S4x1x16 ![0, 2] bcast_S4x16_S4x1x16_0_2 : (⟨S4x16, .f32⟩ : BufTy).Contents (Elt F) → (⟨S4x1x16, .f32⟩ : BufTy).Contents (Elt F)),
    unary main_v1798 main_v1799 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1795 main_v1799 main_v1800 (mulf : (⟨S4x256x16, .f32⟩ : BufTy).Contents (Elt F) → (⟨S4x256x16, .f32⟩ : BufTy).Contents (Elt F) → (⟨S4x256x16, .f32⟩ : BufTy).Contents (Elt F)),
    nullary main_cst_178 (constant S_ .f32 0x00000000#32),
    binary main_v1800 main_cst_178 main_v1801 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_179 (constantI S_ 32 89#32),
    unary main_c_179 main_v1802 (broadcastInDim S1 ![] bcast_S_S1 : (⟨S_, .i32⟩ : BufTy).Contents (Elt F) → (⟨S1, .i32⟩ : BufTy).Contents (Elt F)),
    ternary main_v1783 main_v1802 main_v1801 main_v1803 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps89_ok : (stepOps89 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step89_val (V : Valuation τ sig (Elt Ideal)) :
    after (stepOps89 (F := Ideal)) V (no_index (Proc.devRef .tc main_v1795)) = stepH 89 (by decide) (V (Proc.devRef .tc main_arg0)) (V (Proc.devRef .tc main_v3)) (V (Proc.devRef .tc main_arg2)) (V (Proc.devRef .tc main_v1775))
    ∧ after (stepOps89 (F := Ideal)) V (no_index (Proc.devRef .tc main_v1803)) = stepY 89 (by decide) (V (Proc.devRef .tc main_arg3)) (stepH 89 (by decide) (V (Proc.devRef .tc main_arg0)) (V (Proc.devRef .tc main_v3)) (V (Proc.devRef .tc main_arg2)) (V (Proc.devRef .tc main_v1775))) (V (Proc.devRef .tc main_v1783)) := by
  simp only [stepOps89]
  after_results_simp
  first | exact ⟨rfl, rfl⟩ | fail "value"
/-- Step 90 of the loop: operations 1987 … 2008 of the program. -/
abbrev stepOps90 : List (HloOp τ sig (Elt F)) :=
  [ unary main_v3 main_v1804 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1795 main_v1804 main_v1805 (mulf : (⟨S4x256x16, .f32⟩ : BufTy).Contents (Elt F) → (⟨S4x256x16, .f32⟩ : BufTy).Contents (Elt F) → (⟨S4x256x16, .f32⟩ : BufTy).Contents (Elt F)),
    unary main_arg0 main_v1806 ((extractStridedSlice S4x1x256 ![0, 90, 0] · slices_S4x512x256_S4x1x256_0_90_0) : (⟨S4x512x256, .f32⟩ : BufTy).Contents (Elt F) → (⟨S4x1x256, .f32⟩ : BufTy).Contents (Elt F)),
    reshape main_v1806 main_v1807 rfl shapeCasts_S4x1x256_S4x256,
    unary main_v1807 main_v1808 (broadcastInDim S4x256x1 ![0, 1] bcast_S4x256_S4x256x1_0_1 : (⟨S4x256, .f32⟩ : BufTy).Contents (Elt F) → (⟨S4x256x1, .f32⟩ : BufTy).Contents (Elt F)),
    unary main_arg2 main_v1809 ((extractStridedSlice S4x1x16 ![0, 90, 0] · slices_S4x512x16_S4x1x16_0_90_0) : (⟨S4x512x16, .f32⟩ : BufTy).Contents (Elt F) → (⟨S4x1x16, .f32⟩ : BufTy).Contents (Elt F)),
    reshape main_v1809 main_v1810 rfl shapeCasts_S4x1x16_S4x16,
    unary main_v1810 main_v1811 (broadcastInDim S4x1x16 ![0, 2] bcast_S4x16_S4x1x16_0_2 : (⟨S4x16, .f32⟩ : BufTy).Contents (Elt F) → (⟨S4x1x16, .f32⟩ : BufTy).Contents (Elt F)),
    unary main_v1808 main_v1812 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1811 main_v1813 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1812 main_v1813 main_v1814 (mulf : (⟨S4x256x16, .f32⟩ : BufTy).Contents (Elt F) → (⟨S4x256x16, .f32⟩ : BufTy).Contents (Elt F) → (⟨S4x256x16, .f32⟩ : BufTy).Contents (Elt F)),
    binary main_v1805 main_v1814 main_v1815 (addf : (⟨S4x256x16, .f32⟩ : BufTy).Contents (Elt F) → (⟨S4x256x16, .f32⟩ : BufTy).Contents (Elt F) → (⟨S4x256x16, .f32⟩ : BufTy).Contents (Elt F)),
    unary main_arg3 main_v1816 ((extractStridedSlice S4x1x16 ![0, 90, 0] · slices_S4x512x16_S4x1x16_0_90_0) : (⟨S4x512x16, .f32⟩ : BufTy).Contents (Elt F) → (⟨S4x1x16, .f32⟩ : BufTy).Contents (Elt F)),
    reshape main_v1816 main_v1817 rfl shapeCasts_S4x1x16_S4x16,
    unary main_v1817 main_v1818 (broadcastInDim S4x1x16 ![0, 2] bcast_S4x16_S4x1x16_0_2 : (⟨S4x16, .f32⟩ : BufTy).Contents (Elt F) → (⟨S4x1x16, .f32⟩ : BufTy).Contents (Elt F)),
    unary main_v1818 main_v1819 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1815 main_v1819 main_v1820 (mulf : (⟨S4x256x16, .f32⟩ : BufTy).Contents (Elt F) → (⟨S4x256x16, .f32⟩ : BufTy).Contents (Elt F) → (⟨S4x256x16, .f32⟩ : BufTy).Contents (Elt F)),
    nullary main_cst_180 (constant S_ .f32 0x00000000#32),
    binary main_v1820 main_cst_180 main_v1821 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_181 (constantI S_ 32 90#32),
    unary main_c_181 main_v1822 (broadcastInDim S1 ![] bcast_S_S1 : (⟨S_, .i32⟩ : BufTy).Contents (Elt F) → (⟨S1, .i32⟩ : BufTy).Contents (Elt F)),
    ternary main_v1803 main_v1822 main_v1821 main_v1823 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps90_ok : (stepOps90 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step90_val (V : Valuation τ sig (Elt Ideal)) :
    after (stepOps90 (F := Ideal)) V (no_index (Proc.devRef .tc main_v1815)) = stepH 90 (by decide) (V (Proc.devRef .tc main_arg0)) (V (Proc.devRef .tc main_v3)) (V (Proc.devRef .tc main_arg2)) (V (Proc.devRef .tc main_v1795))
    ∧ after (stepOps90 (F := Ideal)) V (no_index (Proc.devRef .tc main_v1823)) = stepY 90 (by decide) (V (Proc.devRef .tc main_arg3)) (stepH 90 (by decide) (V (Proc.devRef .tc main_arg0)) (V (Proc.devRef .tc main_v3)) (V (Proc.devRef .tc main_arg2)) (V (Proc.devRef .tc main_v1795))) (V (Proc.devRef .tc main_v1803)) := by
  simp only [stepOps90]
  after_results_simp
  first | exact ⟨rfl, rfl⟩ | fail "value"
/-- Step 91 of the loop: operations 2009 … 2030 of the program. -/
abbrev stepOps91 : List (HloOp τ sig (Elt F)) :=
  [ unary main_v3 main_v1824 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1815 main_v1824 main_v1825 (mulf : (⟨S4x256x16, .f32⟩ : BufTy).Contents (Elt F) → (⟨S4x256x16, .f32⟩ : BufTy).Contents (Elt F) → (⟨S4x256x16, .f32⟩ : BufTy).Contents (Elt F)),
    unary main_arg0 main_v1826 ((extractStridedSlice S4x1x256 ![0, 91, 0] · slices_S4x512x256_S4x1x256_0_91_0) : (⟨S4x512x256, .f32⟩ : BufTy).Contents (Elt F) → (⟨S4x1x256, .f32⟩ : BufTy).Contents (Elt F)),
    reshape main_v1826 main_v1827 rfl shapeCasts_S4x1x256_S4x256,
    unary main_v1827 main_v1828 (broadcastInDim S4x256x1 ![0, 1] bcast_S4x256_S4x256x1_0_1 : (⟨S4x256, .f32⟩ : BufTy).Contents (Elt F) → (⟨S4x256x1, .f32⟩ : BufTy).Contents (Elt F)),
    unary main_arg2 main_v1829 ((extractStridedSlice S4x1x16 ![0, 91, 0] · slices_S4x512x16_S4x1x16_0_91_0) : (⟨S4x512x16, .f32⟩ : BufTy).Contents (Elt F) → (⟨S4x1x16, .f32⟩ : BufTy).Contents (Elt F)),
    reshape main_v1829 main_v1830 rfl shapeCasts_S4x1x16_S4x16,
    unary main_v1830 main_v1831 (broadcastInDim S4x1x16 ![0, 2] bcast_S4x16_S4x1x16_0_2 : (⟨S4x16, .f32⟩ : BufTy).Contents (Elt F) → (⟨S4x1x16, .f32⟩ : BufTy).Contents (Elt F)),
    unary main_v1828 main_v1832 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1831 main_v1833 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1832 main_v1833 main_v1834 (mulf : (⟨S4x256x16, .f32⟩ : BufTy).Contents (Elt F) → (⟨S4x256x16, .f32⟩ : BufTy).Contents (Elt F) → (⟨S4x256x16, .f32⟩ : BufTy).Contents (Elt F)),
    binary main_v1825 main_v1834 main_v1835 (addf : (⟨S4x256x16, .f32⟩ : BufTy).Contents (Elt F) → (⟨S4x256x16, .f32⟩ : BufTy).Contents (Elt F) → (⟨S4x256x16, .f32⟩ : BufTy).Contents (Elt F)),
    unary main_arg3 main_v1836 ((extractStridedSlice S4x1x16 ![0, 91, 0] · slices_S4x512x16_S4x1x16_0_91_0) : (⟨S4x512x16, .f32⟩ : BufTy).Contents (Elt F) → (⟨S4x1x16, .f32⟩ : BufTy).Contents (Elt F)),
    reshape main_v1836 main_v1837 rfl shapeCasts_S4x1x16_S4x16,
    unary main_v1837 main_v1838 (broadcastInDim S4x1x16 ![0, 2] bcast_S4x16_S4x1x16_0_2 : (⟨S4x16, .f32⟩ : BufTy).Contents (Elt F) → (⟨S4x1x16, .f32⟩ : BufTy).Contents (Elt F)),
    unary main_v1838 main_v1839 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1835 main_v1839 main_v1840 (mulf : (⟨S4x256x16, .f32⟩ : BufTy).Contents (Elt F) → (⟨S4x256x16, .f32⟩ : BufTy).Contents (Elt F) → (⟨S4x256x16, .f32⟩ : BufTy).Contents (Elt F)),
    nullary main_cst_182 (constant S_ .f32 0x00000000#32),
    binary main_v1840 main_cst_182 main_v1841 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_183 (constantI S_ 32 91#32),
    unary main_c_183 main_v1842 (broadcastInDim S1 ![] bcast_S_S1 : (⟨S_, .i32⟩ : BufTy).Contents (Elt F) → (⟨S1, .i32⟩ : BufTy).Contents (Elt F)),
    ternary main_v1823 main_v1842 main_v1841 main_v1843 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps91_ok : (stepOps91 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step91_val (V : Valuation τ sig (Elt Ideal)) :
    after (stepOps91 (F := Ideal)) V (no_index (Proc.devRef .tc main_v1835)) = stepH 91 (by decide) (V (Proc.devRef .tc main_arg0)) (V (Proc.devRef .tc main_v3)) (V (Proc.devRef .tc main_arg2)) (V (Proc.devRef .tc main_v1815))
    ∧ after (stepOps91 (F := Ideal)) V (no_index (Proc.devRef .tc main_v1843)) = stepY 91 (by decide) (V (Proc.devRef .tc main_arg3)) (stepH 91 (by decide) (V (Proc.devRef .tc main_arg0)) (V (Proc.devRef .tc main_v3)) (V (Proc.devRef .tc main_arg2)) (V (Proc.devRef .tc main_v1815))) (V (Proc.devRef .tc main_v1823)) := by
  simp only [stepOps91]
  after_results_simp
  first | exact ⟨rfl, rfl⟩ | fail "value"
/-- Step 92 of the loop: operations 2031 … 2052 of the program. -/
abbrev stepOps92 : List (HloOp τ sig (Elt F)) :=
  [ unary main_v3 main_v1844 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1835 main_v1844 main_v1845 (mulf : (⟨S4x256x16, .f32⟩ : BufTy).Contents (Elt F) → (⟨S4x256x16, .f32⟩ : BufTy).Contents (Elt F) → (⟨S4x256x16, .f32⟩ : BufTy).Contents (Elt F)),
    unary main_arg0 main_v1846 ((extractStridedSlice S4x1x256 ![0, 92, 0] · slices_S4x512x256_S4x1x256_0_92_0) : (⟨S4x512x256, .f32⟩ : BufTy).Contents (Elt F) → (⟨S4x1x256, .f32⟩ : BufTy).Contents (Elt F)),
    reshape main_v1846 main_v1847 rfl shapeCasts_S4x1x256_S4x256,
    unary main_v1847 main_v1848 (broadcastInDim S4x256x1 ![0, 1] bcast_S4x256_S4x256x1_0_1 : (⟨S4x256, .f32⟩ : BufTy).Contents (Elt F) → (⟨S4x256x1, .f32⟩ : BufTy).Contents (Elt F)),
    unary main_arg2 main_v1849 ((extractStridedSlice S4x1x16 ![0, 92, 0] · slices_S4x512x16_S4x1x16_0_92_0) : (⟨S4x512x16, .f32⟩ : BufTy).Contents (Elt F) → (⟨S4x1x16, .f32⟩ : BufTy).Contents (Elt F)),
    reshape main_v1849 main_v1850 rfl shapeCasts_S4x1x16_S4x16,
    unary main_v1850 main_v1851 (broadcastInDim S4x1x16 ![0, 2] bcast_S4x16_S4x1x16_0_2 : (⟨S4x16, .f32⟩ : BufTy).Contents (Elt F) → (⟨S4x1x16, .f32⟩ : BufTy).Contents (Elt F)),
    unary main_v1848 main_v1852 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1851 main_v1853 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1852 main_v1853 main_v1854 (mulf : (⟨S4x256x16, .f32⟩ : BufTy).Contents (Elt F) → (⟨S4x256x16, .f32⟩ : BufTy).Contents (Elt F) → (⟨S4x256x16, .f32⟩ : BufTy).Contents (Elt F)),
    binary main_v1845 main_v1854 main_v1855 (addf : (⟨S4x256x16, .f32⟩ : BufTy).Contents (Elt F) → (⟨S4x256x16, .f32⟩ : BufTy).Contents (Elt F) → (⟨S4x256x16, .f32⟩ : BufTy).Contents (Elt F)),
    unary main_arg3 main_v1856 ((extractStridedSlice S4x1x16 ![0, 92, 0] · slices_S4x512x16_S4x1x16_0_92_0) : (⟨S4x512x16, .f32⟩ : BufTy).Contents (Elt F) → (⟨S4x1x16, .f32⟩ : BufTy).Contents (Elt F)),
    reshape main_v1856 main_v1857 rfl shapeCasts_S4x1x16_S4x16,
    unary main_v1857 main_v1858 (broadcastInDim S4x1x16 ![0, 2] bcast_S4x16_S4x1x16_0_2 : (⟨S4x16, .f32⟩ : BufTy).Contents (Elt F) → (⟨S4x1x16, .f32⟩ : BufTy).Contents (Elt F)),
    unary main_v1858 main_v1859 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1855 main_v1859 main_v1860 (mulf : (⟨S4x256x16, .f32⟩ : BufTy).Contents (Elt F) → (⟨S4x256x16, .f32⟩ : BufTy).Contents (Elt F) → (⟨S4x256x16, .f32⟩ : BufTy).Contents (Elt F)),
    nullary main_cst_184 (constant S_ .f32 0x00000000#32),
    binary main_v1860 main_cst_184 main_v1861 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_185 (constantI S_ 32 92#32),
    unary main_c_185 main_v1862 (broadcastInDim S1 ![] bcast_S_S1 : (⟨S_, .i32⟩ : BufTy).Contents (Elt F) → (⟨S1, .i32⟩ : BufTy).Contents (Elt F)),
    ternary main_v1843 main_v1862 main_v1861 main_v1863 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps92_ok : (stepOps92 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step92_val (V : Valuation τ sig (Elt Ideal)) :
    after (stepOps92 (F := Ideal)) V (no_index (Proc.devRef .tc main_v1855)) = stepH 92 (by decide) (V (Proc.devRef .tc main_arg0)) (V (Proc.devRef .tc main_v3)) (V (Proc.devRef .tc main_arg2)) (V (Proc.devRef .tc main_v1835))
    ∧ after (stepOps92 (F := Ideal)) V (no_index (Proc.devRef .tc main_v1863)) = stepY 92 (by decide) (V (Proc.devRef .tc main_arg3)) (stepH 92 (by decide) (V (Proc.devRef .tc main_arg0)) (V (Proc.devRef .tc main_v3)) (V (Proc.devRef .tc main_arg2)) (V (Proc.devRef .tc main_v1835))) (V (Proc.devRef .tc main_v1843)) := by
  simp only [stepOps92]
  after_results_simp
  first | exact ⟨rfl, rfl⟩ | fail "value"
/-- Step 93 of the loop: operations 2053 … 2074 of the program. -/
abbrev stepOps93 : List (HloOp τ sig (Elt F)) :=
  [ unary main_v3 main_v1864 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1855 main_v1864 main_v1865 (mulf : (⟨S4x256x16, .f32⟩ : BufTy).Contents (Elt F) → (⟨S4x256x16, .f32⟩ : BufTy).Contents (Elt F) → (⟨S4x256x16, .f32⟩ : BufTy).Contents (Elt F)),
    unary main_arg0 main_v1866 ((extractStridedSlice S4x1x256 ![0, 93, 0] · slices_S4x512x256_S4x1x256_0_93_0) : (⟨S4x512x256, .f32⟩ : BufTy).Contents (Elt F) → (⟨S4x1x256, .f32⟩ : BufTy).Contents (Elt F)),
    reshape main_v1866 main_v1867 rfl shapeCasts_S4x1x256_S4x256,
    unary main_v1867 main_v1868 (broadcastInDim S4x256x1 ![0, 1] bcast_S4x256_S4x256x1_0_1 : (⟨S4x256, .f32⟩ : BufTy).Contents (Elt F) → (⟨S4x256x1, .f32⟩ : BufTy).Contents (Elt F)),
    unary main_arg2 main_v1869 ((extractStridedSlice S4x1x16 ![0, 93, 0] · slices_S4x512x16_S4x1x16_0_93_0) : (⟨S4x512x16, .f32⟩ : BufTy).Contents (Elt F) → (⟨S4x1x16, .f32⟩ : BufTy).Contents (Elt F)),
    reshape main_v1869 main_v1870 rfl shapeCasts_S4x1x16_S4x16,
    unary main_v1870 main_v1871 (broadcastInDim S4x1x16 ![0, 2] bcast_S4x16_S4x1x16_0_2 : (⟨S4x16, .f32⟩ : BufTy).Contents (Elt F) → (⟨S4x1x16, .f32⟩ : BufTy).Contents (Elt F)),
    unary main_v1868 main_v1872 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1871 main_v1873 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1872 main_v1873 main_v1874 (mulf : (⟨S4x256x16, .f32⟩ : BufTy).Contents (Elt F) → (⟨S4x256x16, .f32⟩ : BufTy).Contents (Elt F) → (⟨S4x256x16, .f32⟩ : BufTy).Contents (Elt F)),
    binary main_v1865 main_v1874 main_v1875 (addf : (⟨S4x256x16, .f32⟩ : BufTy).Contents (Elt F) → (⟨S4x256x16, .f32⟩ : BufTy).Contents (Elt F) → (⟨S4x256x16, .f32⟩ : BufTy).Contents (Elt F)),
    unary main_arg3 main_v1876 ((extractStridedSlice S4x1x16 ![0, 93, 0] · slices_S4x512x16_S4x1x16_0_93_0) : (⟨S4x512x16, .f32⟩ : BufTy).Contents (Elt F) → (⟨S4x1x16, .f32⟩ : BufTy).Contents (Elt F)),
    reshape main_v1876 main_v1877 rfl shapeCasts_S4x1x16_S4x16,
    unary main_v1877 main_v1878 (broadcastInDim S4x1x16 ![0, 2] bcast_S4x16_S4x1x16_0_2 : (⟨S4x16, .f32⟩ : BufTy).Contents (Elt F) → (⟨S4x1x16, .f32⟩ : BufTy).Contents (Elt F)),
    unary main_v1878 main_v1879 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1875 main_v1879 main_v1880 (mulf : (⟨S4x256x16, .f32⟩ : BufTy).Contents (Elt F) → (⟨S4x256x16, .f32⟩ : BufTy).Contents (Elt F) → (⟨S4x256x16, .f32⟩ : BufTy).Contents (Elt F)),
    nullary main_cst_186 (constant S_ .f32 0x00000000#32),
    binary main_v1880 main_cst_186 main_v1881 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_187 (constantI S_ 32 93#32),
    unary main_c_187 main_v1882 (broadcastInDim S1 ![] bcast_S_S1 : (⟨S_, .i32⟩ : BufTy).Contents (Elt F) → (⟨S1, .i32⟩ : BufTy).Contents (Elt F)),
    ternary main_v1863 main_v1882 main_v1881 main_v1883 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps93_ok : (stepOps93 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step93_val (V : Valuation τ sig (Elt Ideal)) :
    after (stepOps93 (F := Ideal)) V (no_index (Proc.devRef .tc main_v1875)) = stepH 93 (by decide) (V (Proc.devRef .tc main_arg0)) (V (Proc.devRef .tc main_v3)) (V (Proc.devRef .tc main_arg2)) (V (Proc.devRef .tc main_v1855))
    ∧ after (stepOps93 (F := Ideal)) V (no_index (Proc.devRef .tc main_v1883)) = stepY 93 (by decide) (V (Proc.devRef .tc main_arg3)) (stepH 93 (by decide) (V (Proc.devRef .tc main_arg0)) (V (Proc.devRef .tc main_v3)) (V (Proc.devRef .tc main_arg2)) (V (Proc.devRef .tc main_v1855))) (V (Proc.devRef .tc main_v1863)) := by
  simp only [stepOps93]
  after_results_simp
  first | exact ⟨rfl, rfl⟩ | fail "value"
/-- Step 94 of the loop: operations 2075 … 2096 of the program. -/
abbrev stepOps94 : List (HloOp τ sig (Elt F)) :=
  [ unary main_v3 main_v1884 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1875 main_v1884 main_v1885 (mulf : (⟨S4x256x16, .f32⟩ : BufTy).Contents (Elt F) → (⟨S4x256x16, .f32⟩ : BufTy).Contents (Elt F) → (⟨S4x256x16, .f32⟩ : BufTy).Contents (Elt F)),
    unary main_arg0 main_v1886 ((extractStridedSlice S4x1x256 ![0, 94, 0] · slices_S4x512x256_S4x1x256_0_94_0) : (⟨S4x512x256, .f32⟩ : BufTy).Contents (Elt F) → (⟨S4x1x256, .f32⟩ : BufTy).Contents (Elt F)),
    reshape main_v1886 main_v1887 rfl shapeCasts_S4x1x256_S4x256,
    unary main_v1887 main_v1888 (broadcastInDim S4x256x1 ![0, 1] bcast_S4x256_S4x256x1_0_1 : (⟨S4x256, .f32⟩ : BufTy).Contents (Elt F) → (⟨S4x256x1, .f32⟩ : BufTy).Contents (Elt F)),
    unary main_arg2 main_v1889 ((extractStridedSlice S4x1x16 ![0, 94, 0] · slices_S4x512x16_S4x1x16_0_94_0) : (⟨S4x512x16, .f32⟩ : BufTy).Contents (Elt F) → (⟨S4x1x16, .f32⟩ : BufTy).Contents (Elt F)),
    reshape main_v1889 main_v1890 rfl shapeCasts_S4x1x16_S4x16,
    unary main_v1890 main_v1891 (broadcastInDim S4x1x16 ![0, 2] bcast_S4x16_S4x1x16_0_2 : (⟨S4x16, .f32⟩ : BufTy).Contents (Elt F) → (⟨S4x1x16, .f32⟩ : BufTy).Contents (Elt F)),
    unary main_v1888 main_v1892 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1891 main_v1893 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1892 main_v1893 main_v1894 (mulf : (⟨S4x256x16, .f32⟩ : BufTy).Contents (Elt F) → (⟨S4x256x16, .f32⟩ : BufTy).Contents (Elt F) → (⟨S4x256x16, .f32⟩ : BufTy).Contents (Elt F)),
    binary main_v1885 main_v1894 main_v1895 (addf : (⟨S4x256x16, .f32⟩ : BufTy).Contents (Elt F) → (⟨S4x256x16, .f32⟩ : BufTy).Contents (Elt F) → (⟨S4x256x16, .f32⟩ : BufTy).Contents (Elt F)),
    unary main_arg3 main_v1896 ((extractStridedSlice S4x1x16 ![0, 94, 0] · slices_S4x512x16_S4x1x16_0_94_0) : (⟨S4x512x16, .f32⟩ : BufTy).Contents (Elt F) → (⟨S4x1x16, .f32⟩ : BufTy).Contents (Elt F)),
    reshape main_v1896 main_v1897 rfl shapeCasts_S4x1x16_S4x16,
    unary main_v1897 main_v1898 (broadcastInDim S4x1x16 ![0, 2] bcast_S4x16_S4x1x16_0_2 : (⟨S4x16, .f32⟩ : BufTy).Contents (Elt F) → (⟨S4x1x16, .f32⟩ : BufTy).Contents (Elt F)),
    unary main_v1898 main_v1899 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1895 main_v1899 main_v1900 (mulf : (⟨S4x256x16, .f32⟩ : BufTy).Contents (Elt F) → (⟨S4x256x16, .f32⟩ : BufTy).Contents (Elt F) → (⟨S4x256x16, .f32⟩ : BufTy).Contents (Elt F)),
    nullary main_cst_188 (constant S_ .f32 0x00000000#32),
    binary main_v1900 main_cst_188 main_v1901 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_189 (constantI S_ 32 94#32),
    unary main_c_189 main_v1902 (broadcastInDim S1 ![] bcast_S_S1 : (⟨S_, .i32⟩ : BufTy).Contents (Elt F) → (⟨S1, .i32⟩ : BufTy).Contents (Elt F)),
    ternary main_v1883 main_v1902 main_v1901 main_v1903 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps94_ok : (stepOps94 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step94_val (V : Valuation τ sig (Elt Ideal)) :
    after (stepOps94 (F := Ideal)) V (no_index (Proc.devRef .tc main_v1895)) = stepH 94 (by decide) (V (Proc.devRef .tc main_arg0)) (V (Proc.devRef .tc main_v3)) (V (Proc.devRef .tc main_arg2)) (V (Proc.devRef .tc main_v1875))
    ∧ after (stepOps94 (F := Ideal)) V (no_index (Proc.devRef .tc main_v1903)) = stepY 94 (by decide) (V (Proc.devRef .tc main_arg3)) (stepH 94 (by decide) (V (Proc.devRef .tc main_arg0)) (V (Proc.devRef .tc main_v3)) (V (Proc.devRef .tc main_arg2)) (V (Proc.devRef .tc main_v1875))) (V (Proc.devRef .tc main_v1883)) := by
  simp only [stepOps94]
  after_results_simp
  first | exact ⟨rfl, rfl⟩ | fail "value"
/-- Step 95 of the loop: operations 2097 … 2118 of the program. -/
abbrev stepOps95 : List (HloOp τ sig (Elt F)) :=
  [ unary main_v3 main_v1904 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1895 main_v1904 main_v1905 (mulf : (⟨S4x256x16, .f32⟩ : BufTy).Contents (Elt F) → (⟨S4x256x16, .f32⟩ : BufTy).Contents (Elt F) → (⟨S4x256x16, .f32⟩ : BufTy).Contents (Elt F)),
    unary main_arg0 main_v1906 ((extractStridedSlice S4x1x256 ![0, 95, 0] · slices_S4x512x256_S4x1x256_0_95_0) : (⟨S4x512x256, .f32⟩ : BufTy).Contents (Elt F) → (⟨S4x1x256, .f32⟩ : BufTy).Contents (Elt F)),
    reshape main_v1906 main_v1907 rfl shapeCasts_S4x1x256_S4x256,
    unary main_v1907 main_v1908 (broadcastInDim S4x256x1 ![0, 1] bcast_S4x256_S4x256x1_0_1 : (⟨S4x256, .f32⟩ : BufTy).Contents (Elt F) → (⟨S4x256x1, .f32⟩ : BufTy).Contents (Elt F)),
    unary main_arg2 main_v1909 ((extractStridedSlice S4x1x16 ![0, 95, 0] · slices_S4x512x16_S4x1x16_0_95_0) : (⟨S4x512x16, .f32⟩ : BufTy).Contents (Elt F) → (⟨S4x1x16, .f32⟩ : BufTy).Contents (Elt F)),
    reshape main_v1909 main_v1910 rfl shapeCasts_S4x1x16_S4x16,
    unary main_v1910 main_v1911 (broadcastInDim S4x1x16 ![0, 2] bcast_S4x16_S4x1x16_0_2 : (⟨S4x16, .f32⟩ : BufTy).Contents (Elt F) → (⟨S4x1x16, .f32⟩ : BufTy).Contents (Elt F)),
    unary main_v1908 main_v1912 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1911 main_v1913 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1912 main_v1913 main_v1914 (mulf : (⟨S4x256x16, .f32⟩ : BufTy).Contents (Elt F) → (⟨S4x256x16, .f32⟩ : BufTy).Contents (Elt F) → (⟨S4x256x16, .f32⟩ : BufTy).Contents (Elt F)),
    binary main_v1905 main_v1914 main_v1915 (addf : (⟨S4x256x16, .f32⟩ : BufTy).Contents (Elt F) → (⟨S4x256x16, .f32⟩ : BufTy).Contents (Elt F) → (⟨S4x256x16, .f32⟩ : BufTy).Contents (Elt F)),
    unary main_arg3 main_v1916 ((extractStridedSlice S4x1x16 ![0, 95, 0] · slices_S4x512x16_S4x1x16_0_95_0) : (⟨S4x512x16, .f32⟩ : BufTy).Contents (Elt F) → (⟨S4x1x16, .f32⟩ : BufTy).Contents (Elt F)),
    reshape main_v1916 main_v1917 rfl shapeCasts_S4x1x16_S4x16,
    unary main_v1917 main_v1918 (broadcastInDim S4x1x16 ![0, 2] bcast_S4x16_S4x1x16_0_2 : (⟨S4x16, .f32⟩ : BufTy).Contents (Elt F) → (⟨S4x1x16, .f32⟩ : BufTy).Contents (Elt F)),
    unary main_v1918 main_v1919 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1915 main_v1919 main_v1920 (mulf : (⟨S4x256x16, .f32⟩ : BufTy).Contents (Elt F) → (⟨S4x256x16, .f32⟩ : BufTy).Contents (Elt F) → (⟨S4x256x16, .f32⟩ : BufTy).Contents (Elt F)),
    nullary main_cst_190 (constant S_ .f32 0x00000000#32),
    binary main_v1920 main_cst_190 main_v1921 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_191 (constantI S_ 32 95#32),
    unary main_c_191 main_v1922 (broadcastInDim S1 ![] bcast_S_S1 : (⟨S_, .i32⟩ : BufTy).Contents (Elt F) → (⟨S1, .i32⟩ : BufTy).Contents (Elt F)),
    ternary main_v1903 main_v1922 main_v1921 main_v1923 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps95_ok : (stepOps95 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step95_val (V : Valuation τ sig (Elt Ideal)) :
    after (stepOps95 (F := Ideal)) V (no_index (Proc.devRef .tc main_v1915)) = stepH 95 (by decide) (V (Proc.devRef .tc main_arg0)) (V (Proc.devRef .tc main_v3)) (V (Proc.devRef .tc main_arg2)) (V (Proc.devRef .tc main_v1895))
    ∧ after (stepOps95 (F := Ideal)) V (no_index (Proc.devRef .tc main_v1923)) = stepY 95 (by decide) (V (Proc.devRef .tc main_arg3)) (stepH 95 (by decide) (V (Proc.devRef .tc main_arg0)) (V (Proc.devRef .tc main_v3)) (V (Proc.devRef .tc main_arg2)) (V (Proc.devRef .tc main_v1895))) (V (Proc.devRef .tc main_v1903)) := by
  simp only [stepOps95]
  after_results_simp
  first | exact ⟨rfl, rfl⟩ | fail "value"

end Cert.ReferenceIdeal.RefRun

end
-- ==== Proof.RefTableStep06.lean ====
/-
  Steps 96 … 111 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 96 of the loop: operations 2119 … 2140 of the program. -/
abbrev stepOps96 : List (HloOp τ sig (Elt F)) :=
  [ unary main_v3 main_v1924 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1915 main_v1924 main_v1925 (mulf : (⟨S4x256x16, .f32⟩ : BufTy).Contents (Elt F) → (⟨S4x256x16, .f32⟩ : BufTy).Contents (Elt F) → (⟨S4x256x16, .f32⟩ : BufTy).Contents (Elt F)),
    unary main_arg0 main_v1926 ((extractStridedSlice S4x1x256 ![0, 96, 0] · slices_S4x512x256_S4x1x256_0_96_0) : (⟨S4x512x256, .f32⟩ : BufTy).Contents (Elt F) → (⟨S4x1x256, .f32⟩ : BufTy).Contents (Elt F)),
    reshape main_v1926 main_v1927 rfl shapeCasts_S4x1x256_S4x256,
    unary main_v1927 main_v1928 (broadcastInDim S4x256x1 ![0, 1] bcast_S4x256_S4x256x1_0_1 : (⟨S4x256, .f32⟩ : BufTy).Contents (Elt F) → (⟨S4x256x1, .f32⟩ : BufTy).Contents (Elt F)),
    unary main_arg2 main_v1929 ((extractStridedSlice S4x1x16 ![0, 96, 0] · slices_S4x512x16_S4x1x16_0_96_0) : (⟨S4x512x16, .f32⟩ : BufTy).Contents (Elt F) → (⟨S4x1x16, .f32⟩ : BufTy).Contents (Elt F)),
    reshape main_v1929 main_v1930 rfl shapeCasts_S4x1x16_S4x16,
    unary main_v1930 main_v1931 (broadcastInDim S4x1x16 ![0, 2] bcast_S4x16_S4x1x16_0_2 : (⟨S4x16, .f32⟩ : BufTy).Contents (Elt F) → (⟨S4x1x16, .f32⟩ : BufTy).Contents (Elt F)),
    unary main_v1928 main_v1932 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1931 main_v1933 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1932 main_v1933 main_v1934 (mulf : (⟨S4x256x16, .f32⟩ : BufTy).Contents (Elt F) → (⟨S4x256x16, .f32⟩ : BufTy).Contents (Elt F) → (⟨S4x256x16, .f32⟩ : BufTy).Contents (Elt F)),
    binary main_v1925 main_v1934 main_v1935 (addf : (⟨S4x256x16, .f32⟩ : BufTy).Contents (Elt F) → (⟨S4x256x16, .f32⟩ : BufTy).Contents (Elt F) → (⟨S4x256x16, .f32⟩ : BufTy).Contents (Elt F)),
    unary main_arg3 main_v1936 ((extractStridedSlice S4x1x16 ![0, 96, 0] · slices_S4x512x16_S4x1x16_0_96_0) : (⟨S4x512x16, .f32⟩ : BufTy).Contents (Elt F) → (⟨S4x1x16, .f32⟩ : BufTy).Contents (Elt F)),
    reshape main_v1936 main_v1937 rfl shapeCasts_S4x1x16_S4x16,
    unary main_v1937 main_v1938 (broadcastInDim S4x1x16 ![0, 2] bcast_S4x16_S4x1x16_0_2 : (⟨S4x16, .f32⟩ : BufTy).Contents (Elt F) → (⟨S4x1x16, .f32⟩ : BufTy).Contents (Elt F)),
    unary main_v1938 main_v1939 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1935 main_v1939 main_v1940 (mulf : (⟨S4x256x16, .f32⟩ : BufTy).Contents (Elt F) → (⟨S4x256x16, .f32⟩ : BufTy).Contents (Elt F) → (⟨S4x256x16, .f32⟩ : BufTy).Contents (Elt F)),
    nullary main_cst_192 (constant S_ .f32 0x00000000#32),
    binary main_v1940 main_cst_192 main_v1941 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_193 (constantI S_ 32 96#32),
    unary main_c_193 main_v1942 (broadcastInDim S1 ![] bcast_S_S1 : (⟨S_, .i32⟩ : BufTy).Contents (Elt F) → (⟨S1, .i32⟩ : BufTy).Contents (Elt F)),
    ternary main_v1923 main_v1942 main_v1941 main_v1943 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps96_ok : (stepOps96 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step96_val (V : Valuation τ sig (Elt Ideal)) :
    after (stepOps96 (F := Ideal)) V (no_index (Proc.devRef .tc main_v1935)) = stepH 96 (by decide) (V (Proc.devRef .tc main_arg0)) (V (Proc.devRef .tc main_v3)) (V (Proc.devRef .tc main_arg2)) (V (Proc.devRef .tc main_v1915))
    ∧ after (stepOps96 (F := Ideal)) V (no_index (Proc.devRef .tc main_v1943)) = stepY 96 (by decide) (V (Proc.devRef .tc main_arg3)) (stepH 96 (by decide) (V (Proc.devRef .tc main_arg0)) (V (Proc.devRef .tc main_v3)) (V (Proc.devRef .tc main_arg2)) (V (Proc.devRef .tc main_v1915))) (V (Proc.devRef .tc main_v1923)) := by
  simp only [stepOps96]
  after_results_simp
  first | exact ⟨rfl, rfl⟩ | fail "value"
/-- Step 97 of the loop: operations 2141 … 2162 of the program. -/
abbrev stepOps97 : List (HloOp τ sig (Elt F)) :=
  [ unary main_v3 main_v1944 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1935 main_v1944 main_v1945 (mulf : (⟨S4x256x16, .f32⟩ : BufTy).Contents (Elt F) → (⟨S4x256x16, .f32⟩ : BufTy).Contents (Elt F) → (⟨S4x256x16, .f32⟩ : BufTy).Contents (Elt F)),
    unary main_arg0 main_v1946 ((extractStridedSlice S4x1x256 ![0, 97, 0] · slices_S4x512x256_S4x1x256_0_97_0) : (⟨S4x512x256, .f32⟩ : BufTy).Contents (Elt F) → (⟨S4x1x256, .f32⟩ : BufTy).Contents (Elt F)),
    reshape main_v1946 main_v1947 rfl shapeCasts_S4x1x256_S4x256,
    unary main_v1947 main_v1948 (broadcastInDim S4x256x1 ![0, 1] bcast_S4x256_S4x256x1_0_1 : (⟨S4x256, .f32⟩ : BufTy).Contents (Elt F) → (⟨S4x256x1, .f32⟩ : BufTy).Contents (Elt F)),
    unary main_arg2 main_v1949 ((extractStridedSlice S4x1x16 ![0, 97, 0] · slices_S4x512x16_S4x1x16_0_97_0) : (⟨S4x512x16, .f32⟩ : BufTy).Contents (Elt F) → (⟨S4x1x16, .f32⟩ : BufTy).Contents (Elt F)),
    reshape main_v1949 main_v1950 rfl shapeCasts_S4x1x16_S4x16,
    unary main_v1950 main_v1951 (broadcastInDim S4x1x16 ![0, 2] bcast_S4x16_S4x1x16_0_2 : (⟨S4x16, .f32⟩ : BufTy).Contents (Elt F) → (⟨S4x1x16, .f32⟩ : BufTy).Contents (Elt F)),
    unary main_v1948 main_v1952 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1951 main_v1953 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1952 main_v1953 main_v1954 (mulf : (⟨S4x256x16, .f32⟩ : BufTy).Contents (Elt F) → (⟨S4x256x16, .f32⟩ : BufTy).Contents (Elt F) → (⟨S4x256x16, .f32⟩ : BufTy).Contents (Elt F)),
    binary main_v1945 main_v1954 main_v1955 (addf : (⟨S4x256x16, .f32⟩ : BufTy).Contents (Elt F) → (⟨S4x256x16, .f32⟩ : BufTy).Contents (Elt F) → (⟨S4x256x16, .f32⟩ : BufTy).Contents (Elt F)),
    unary main_arg3 main_v1956 ((extractStridedSlice S4x1x16 ![0, 97, 0] · slices_S4x512x16_S4x1x16_0_97_0) : (⟨S4x512x16, .f32⟩ : BufTy).Contents (Elt F) → (⟨S4x1x16, .f32⟩ : BufTy).Contents (Elt F)),
    reshape main_v1956 main_v1957 rfl shapeCasts_S4x1x16_S4x16,
    unary main_v1957 main_v1958 (broadcastInDim S4x1x16 ![0, 2] bcast_S4x16_S4x1x16_0_2 : (⟨S4x16, .f32⟩ : BufTy).Contents (Elt F) → (⟨S4x1x16, .f32⟩ : BufTy).Contents (Elt F)),
    unary main_v1958 main_v1959 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1955 main_v1959 main_v1960 (mulf : (⟨S4x256x16, .f32⟩ : BufTy).Contents (Elt F) → (⟨S4x256x16, .f32⟩ : BufTy).Contents (Elt F) → (⟨S4x256x16, .f32⟩ : BufTy).Contents (Elt F)),
    nullary main_cst_194 (constant S_ .f32 0x00000000#32),
    binary main_v1960 main_cst_194 main_v1961 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_195 (constantI S_ 32 97#32),
    unary main_c_195 main_v1962 (broadcastInDim S1 ![] bcast_S_S1 : (⟨S_, .i32⟩ : BufTy).Contents (Elt F) → (⟨S1, .i32⟩ : BufTy).Contents (Elt F)),
    ternary main_v1943 main_v1962 main_v1961 main_v1963 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps97_ok : (stepOps97 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step97_val (V : Valuation τ sig (Elt Ideal)) :
    after (stepOps97 (F := Ideal)) V (no_index (Proc.devRef .tc main_v1955)) = stepH 97 (by decide) (V (Proc.devRef .tc main_arg0)) (V (Proc.devRef .tc main_v3)) (V (Proc.devRef .tc main_arg2)) (V (Proc.devRef .tc main_v1935))
    ∧ after (stepOps97 (F := Ideal)) V (no_index (Proc.devRef .tc main_v1963)) = stepY 97 (by decide) (V (Proc.devRef .tc main_arg3)) (stepH 97 (by decide) (V (Proc.devRef .tc main_arg0)) (V (Proc.devRef .tc main_v3)) (V (Proc.devRef .tc main_arg2)) (V (Proc.devRef .tc main_v1935))) (V (Proc.devRef .tc main_v1943)) := by
  simp only [stepOps97]
  after_results_simp
  first | exact ⟨rfl, rfl⟩ | fail "value"
/-- Step 98 of the loop: operations 2163 … 2184 of the program. -/
abbrev stepOps98 : List (HloOp τ sig (Elt F)) :=
  [ unary main_v3 main_v1964 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1955 main_v1964 main_v1965 (mulf : (⟨S4x256x16, .f32⟩ : BufTy).Contents (Elt F) → (⟨S4x256x16, .f32⟩ : BufTy).Contents (Elt F) → (⟨S4x256x16, .f32⟩ : BufTy).Contents (Elt F)),
    unary main_arg0 main_v1966 ((extractStridedSlice S4x1x256 ![0, 98, 0] · slices_S4x512x256_S4x1x256_0_98_0) : (⟨S4x512x256, .f32⟩ : BufTy).Contents (Elt F) → (⟨S4x1x256, .f32⟩ : BufTy).Contents (Elt F)),
    reshape main_v1966 main_v1967 rfl shapeCasts_S4x1x256_S4x256,
    unary main_v1967 main_v1968 (broadcastInDim S4x256x1 ![0, 1] bcast_S4x256_S4x256x1_0_1 : (⟨S4x256, .f32⟩ : BufTy).Contents (Elt F) → (⟨S4x256x1, .f32⟩ : BufTy).Contents (Elt F)),
    unary main_arg2 main_v1969 ((extractStridedSlice S4x1x16 ![0, 98, 0] · slices_S4x512x16_S4x1x16_0_98_0) : (⟨S4x512x16, .f32⟩ : BufTy).Contents (Elt F) → (⟨S4x1x16, .f32⟩ : BufTy).Contents (Elt F)),
    reshape main_v1969 main_v1970 rfl shapeCasts_S4x1x16_S4x16,
    unary main_v1970 main_v1971 (broadcastInDim S4x1x16 ![0, 2] bcast_S4x16_S4x1x16_0_2 : (⟨S4x16, .f32⟩ : BufTy).Contents (Elt F) → (⟨S4x1x16, .f32⟩ : BufTy).Contents (Elt F)),
    unary main_v1968 main_v1972 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1971 main_v1973 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1972 main_v1973 main_v1974 (mulf : (⟨S4x256x16, .f32⟩ : BufTy).Contents (Elt F) → (⟨S4x256x16, .f32⟩ : BufTy).Contents (Elt F) → (⟨S4x256x16, .f32⟩ : BufTy).Contents (Elt F)),
    binary main_v1965 main_v1974 main_v1975 (addf : (⟨S4x256x16, .f32⟩ : BufTy).Contents (Elt F) → (⟨S4x256x16, .f32⟩ : BufTy).Contents (Elt F) → (⟨S4x256x16, .f32⟩ : BufTy).Contents (Elt F)),
    unary main_arg3 main_v1976 ((extractStridedSlice S4x1x16 ![0, 98, 0] · slices_S4x512x16_S4x1x16_0_98_0) : (⟨S4x512x16, .f32⟩ : BufTy).Contents (Elt F) → (⟨S4x1x16, .f32⟩ : BufTy).Contents (Elt F)),
    reshape main_v1976 main_v1977 rfl shapeCasts_S4x1x16_S4x16,
    unary main_v1977 main_v1978 (broadcastInDim S4x1x16 ![0, 2] bcast_S4x16_S4x1x16_0_2 : (⟨S4x16, .f32⟩ : BufTy).Contents (Elt F) → (⟨S4x1x16, .f32⟩ : BufTy).Contents (Elt F)),
    unary main_v1978 main_v1979 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1975 main_v1979 main_v1980 (mulf : (⟨S4x256x16, .f32⟩ : BufTy).Contents (Elt F) → (⟨S4x256x16, .f32⟩ : BufTy).Contents (Elt F) → (⟨S4x256x16, .f32⟩ : BufTy).Contents (Elt F)),
    nullary main_cst_196 (constant S_ .f32 0x00000000#32),
    binary main_v1980 main_cst_196 main_v1981 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_197 (constantI S_ 32 98#32),
    unary main_c_197 main_v1982 (broadcastInDim S1 ![] bcast_S_S1 : (⟨S_, .i32⟩ : BufTy).Contents (Elt F) → (⟨S1, .i32⟩ : BufTy).Contents (Elt F)),
    ternary main_v1963 main_v1982 main_v1981 main_v1983 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps98_ok : (stepOps98 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step98_val (V : Valuation τ sig (Elt Ideal)) :
    after (stepOps98 (F := Ideal)) V (no_index (Proc.devRef .tc main_v1975)) = stepH 98 (by decide) (V (Proc.devRef .tc main_arg0)) (V (Proc.devRef .tc main_v3)) (V (Proc.devRef .tc main_arg2)) (V (Proc.devRef .tc main_v1955))
    ∧ after (stepOps98 (F := Ideal)) V (no_index (Proc.devRef .tc main_v1983)) = stepY 98 (by decide) (V (Proc.devRef .tc main_arg3)) (stepH 98 (by decide) (V (Proc.devRef .tc main_arg0)) (V (Proc.devRef .tc main_v3)) (V (Proc.devRef .tc main_arg2)) (V (Proc.devRef .tc main_v1955))) (V (Proc.devRef .tc main_v1963)) := by
  simp only [stepOps98]
  after_results_simp
  first | exact ⟨rfl, rfl⟩ | fail "value"
/-- Step 99 of the loop: operations 2185 … 2206 of the program. -/
abbrev stepOps99 : List (HloOp τ sig (Elt F)) :=
  [ unary main_v3 main_v1984 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1975 main_v1984 main_v1985 (mulf : (⟨S4x256x16, .f32⟩ : BufTy).Contents (Elt F) → (⟨S4x256x16, .f32⟩ : BufTy).Contents (Elt F) → (⟨S4x256x16, .f32⟩ : BufTy).Contents (Elt F)),
    unary main_arg0 main_v1986 ((extractStridedSlice S4x1x256 ![0, 99, 0] · slices_S4x512x256_S4x1x256_0_99_0) : (⟨S4x512x256, .f32⟩ : BufTy).Contents (Elt F) → (⟨S4x1x256, .f32⟩ : BufTy).Contents (Elt F)),
    reshape main_v1986 main_v1987 rfl shapeCasts_S4x1x256_S4x256,
    unary main_v1987 main_v1988 (broadcastInDim S4x256x1 ![0, 1] bcast_S4x256_S4x256x1_0_1 : (⟨S4x256, .f32⟩ : BufTy).Contents (Elt F) → (⟨S4x256x1, .f32⟩ : BufTy).Contents (Elt F)),
    unary main_arg2 main_v1989 ((extractStridedSlice S4x1x16 ![0, 99, 0] · slices_S4x512x16_S4x1x16_0_99_0) : (⟨S4x512x16, .f32⟩ : BufTy).Contents (Elt F) → (⟨S4x1x16, .f32⟩ : BufTy).Contents (Elt F)),
    reshape main_v1989 main_v1990 rfl shapeCasts_S4x1x16_S4x16,
    unary main_v1990 main_v1991 (broadcastInDim S4x1x16 ![0, 2] bcast_S4x16_S4x1x16_0_2 : (⟨S4x16, .f32⟩ : BufTy).Contents (Elt F) → (⟨S4x1x16, .f32⟩ : BufTy).Contents (Elt F)),
    unary main_v1988 main_v1992 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v1991 main_v1993 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1992 main_v1993 main_v1994 (mulf : (⟨S4x256x16, .f32⟩ : BufTy).Contents (Elt F) → (⟨S4x256x16, .f32⟩ : BufTy).Contents (Elt F) → (⟨S4x256x16, .f32⟩ : BufTy).Contents (Elt F)),
    binary main_v1985 main_v1994 main_v1995 (addf : (⟨S4x256x16, .f32⟩ : BufTy).Contents (Elt F) → (⟨S4x256x16, .f32⟩ : BufTy).Contents (Elt F) → (⟨S4x256x16, .f32⟩ : BufTy).Contents (Elt F)),
    unary main_arg3 main_v1996 ((extractStridedSlice S4x1x16 ![0, 99, 0] · slices_S4x512x16_S4x1x16_0_99_0) : (⟨S4x512x16, .f32⟩ : BufTy).Contents (Elt F) → (⟨S4x1x16, .f32⟩ : BufTy).Contents (Elt F)),
    reshape main_v1996 main_v1997 rfl shapeCasts_S4x1x16_S4x16,
    unary main_v1997 main_v1998 (broadcastInDim S4x1x16 ![0, 2] bcast_S4x16_S4x1x16_0_2 : (⟨S4x16, .f32⟩ : BufTy).Contents (Elt F) → (⟨S4x1x16, .f32⟩ : BufTy).Contents (Elt F)),
    unary main_v1998 main_v1999 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v1995 main_v1999 main_v2000 (mulf : (⟨S4x256x16, .f32⟩ : BufTy).Contents (Elt F) → (⟨S4x256x16, .f32⟩ : BufTy).Contents (Elt F) → (⟨S4x256x16, .f32⟩ : BufTy).Contents (Elt F)),
    nullary main_cst_198 (constant S_ .f32 0x00000000#32),
    binary main_v2000 main_cst_198 main_v2001 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_199 (constantI S_ 32 99#32),
    unary main_c_199 main_v2002 (broadcastInDim S1 ![] bcast_S_S1 : (⟨S_, .i32⟩ : BufTy).Contents (Elt F) → (⟨S1, .i32⟩ : BufTy).Contents (Elt F)),
    ternary main_v1983 main_v2002 main_v2001 main_v2003 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps99_ok : (stepOps99 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step99_val (V : Valuation τ sig (Elt Ideal)) :
    after (stepOps99 (F := Ideal)) V (no_index (Proc.devRef .tc main_v1995)) = stepH 99 (by decide) (V (Proc.devRef .tc main_arg0)) (V (Proc.devRef .tc main_v3)) (V (Proc.devRef .tc main_arg2)) (V (Proc.devRef .tc main_v1975))
    ∧ after (stepOps99 (F := Ideal)) V (no_index (Proc.devRef .tc main_v2003)) = stepY 99 (by decide) (V (Proc.devRef .tc main_arg3)) (stepH 99 (by decide) (V (Proc.devRef .tc main_arg0)) (V (Proc.devRef .tc main_v3)) (V (Proc.devRef .tc main_arg2)) (V (Proc.devRef .tc main_v1975))) (V (Proc.devRef .tc main_v1983)) := by
  simp only [stepOps99]
  after_results_simp
  first | exact ⟨rfl, rfl⟩ | fail "value"
/-- Step 100 of the loop: operations 2207 … 2228 of the program. -/
abbrev stepOps100 : List (HloOp τ sig (Elt F)) :=
  [ unary main_v3 main_v2004 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v1995 main_v2004 main_v2005 (mulf : (⟨S4x256x16, .f32⟩ : BufTy).Contents (Elt F) → (⟨S4x256x16, .f32⟩ : BufTy).Contents (Elt F) → (⟨S4x256x16, .f32⟩ : BufTy).Contents (Elt F)),
    unary main_arg0 main_v2006 ((extractStridedSlice S4x1x256 ![0, 100, 0] · slices_S4x512x256_S4x1x256_0_100_0) : (⟨S4x512x256, .f32⟩ : BufTy).Contents (Elt F) → (⟨S4x1x256, .f32⟩ : BufTy).Contents (Elt F)),
    reshape main_v2006 main_v2007 rfl shapeCasts_S4x1x256_S4x256,
    unary main_v2007 main_v2008 (broadcastInDim S4x256x1 ![0, 1] bcast_S4x256_S4x256x1_0_1 : (⟨S4x256, .f32⟩ : BufTy).Contents (Elt F) → (⟨S4x256x1, .f32⟩ : BufTy).Contents (Elt F)),
    unary main_arg2 main_v2009 ((extractStridedSlice S4x1x16 ![0, 100, 0] · slices_S4x512x16_S4x1x16_0_100_0) : (⟨S4x512x16, .f32⟩ : BufTy).Contents (Elt F) → (⟨S4x1x16, .f32⟩ : BufTy).Contents (Elt F)),
    reshape main_v2009 main_v2010 rfl shapeCasts_S4x1x16_S4x16,
    unary main_v2010 main_v2011 (broadcastInDim S4x1x16 ![0, 2] bcast_S4x16_S4x1x16_0_2 : (⟨S4x16, .f32⟩ : BufTy).Contents (Elt F) → (⟨S4x1x16, .f32⟩ : BufTy).Contents (Elt F)),
    unary main_v2008 main_v2012 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2011 main_v2013 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2012 main_v2013 main_v2014 (mulf : (⟨S4x256x16, .f32⟩ : BufTy).Contents (Elt F) → (⟨S4x256x16, .f32⟩ : BufTy).Contents (Elt F) → (⟨S4x256x16, .f32⟩ : BufTy).Contents (Elt F)),
    binary main_v2005 main_v2014 main_v2015 (addf : (⟨S4x256x16, .f32⟩ : BufTy).Contents (Elt F) → (⟨S4x256x16, .f32⟩ : BufTy).Contents (Elt F) → (⟨S4x256x16, .f32⟩ : BufTy).Contents (Elt F)),
    unary main_arg3 main_v2016 ((extractStridedSlice S4x1x16 ![0, 100, 0] · slices_S4x512x16_S4x1x16_0_100_0) : (⟨S4x512x16, .f32⟩ : BufTy).Contents (Elt F) → (⟨S4x1x16, .f32⟩ : BufTy).Contents (Elt F)),
    reshape main_v2016 main_v2017 rfl shapeCasts_S4x1x16_S4x16,
    unary main_v2017 main_v2018 (broadcastInDim S4x1x16 ![0, 2] bcast_S4x16_S4x1x16_0_2 : (⟨S4x16, .f32⟩ : BufTy).Contents (Elt F) → (⟨S4x1x16, .f32⟩ : BufTy).Contents (Elt F)),
    unary main_v2018 main_v2019 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2015 main_v2019 main_v2020 (mulf : (⟨S4x256x16, .f32⟩ : BufTy).Contents (Elt F) → (⟨S4x256x16, .f32⟩ : BufTy).Contents (Elt F) → (⟨S4x256x16, .f32⟩ : BufTy).Contents (Elt F)),
    nullary main_cst_200 (constant S_ .f32 0x00000000#32),
    binary main_v2020 main_cst_200 main_v2021 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_201 (constantI S_ 32 100#32),
    unary main_c_201 main_v2022 (broadcastInDim S1 ![] bcast_S_S1 : (⟨S_, .i32⟩ : BufTy).Contents (Elt F) → (⟨S1, .i32⟩ : BufTy).Contents (Elt F)),
    ternary main_v2003 main_v2022 main_v2021 main_v2023 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps100_ok : (stepOps100 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step100_val (V : Valuation τ sig (Elt Ideal)) :
    after (stepOps100 (F := Ideal)) V (no_index (Proc.devRef .tc main_v2015)) = stepH 100 (by decide) (V (Proc.devRef .tc main_arg0)) (V (Proc.devRef .tc main_v3)) (V (Proc.devRef .tc main_arg2)) (V (Proc.devRef .tc main_v1995))
    ∧ after (stepOps100 (F := Ideal)) V (no_index (Proc.devRef .tc main_v2023)) = stepY 100 (by decide) (V (Proc.devRef .tc main_arg3)) (stepH 100 (by decide) (V (Proc.devRef .tc main_arg0)) (V (Proc.devRef .tc main_v3)) (V (Proc.devRef .tc main_arg2)) (V (Proc.devRef .tc main_v1995))) (V (Proc.devRef .tc main_v2003)) := by
  simp only [stepOps100]
  after_results_simp
  first | exact ⟨rfl, rfl⟩ | fail "value"
/-- Step 101 of the loop: operations 2229 … 2250 of the program. -/
abbrev stepOps101 : List (HloOp τ sig (Elt F)) :=
  [ unary main_v3 main_v2024 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2015 main_v2024 main_v2025 (mulf : (⟨S4x256x16, .f32⟩ : BufTy).Contents (Elt F) → (⟨S4x256x16, .f32⟩ : BufTy).Contents (Elt F) → (⟨S4x256x16, .f32⟩ : BufTy).Contents (Elt F)),
    unary main_arg0 main_v2026 ((extractStridedSlice S4x1x256 ![0, 101, 0] · slices_S4x512x256_S4x1x256_0_101_0) : (⟨S4x512x256, .f32⟩ : BufTy).Contents (Elt F) → (⟨S4x1x256, .f32⟩ : BufTy).Contents (Elt F)),
    reshape main_v2026 main_v2027 rfl shapeCasts_S4x1x256_S4x256,
    unary main_v2027 main_v2028 (broadcastInDim S4x256x1 ![0, 1] bcast_S4x256_S4x256x1_0_1 : (⟨S4x256, .f32⟩ : BufTy).Contents (Elt F) → (⟨S4x256x1, .f32⟩ : BufTy).Contents (Elt F)),
    unary main_arg2 main_v2029 ((extractStridedSlice S4x1x16 ![0, 101, 0] · slices_S4x512x16_S4x1x16_0_101_0) : (⟨S4x512x16, .f32⟩ : BufTy).Contents (Elt F) → (⟨S4x1x16, .f32⟩ : BufTy).Contents (Elt F)),
    reshape main_v2029 main_v2030 rfl shapeCasts_S4x1x16_S4x16,
    unary main_v2030 main_v2031 (broadcastInDim S4x1x16 ![0, 2] bcast_S4x16_S4x1x16_0_2 : (⟨S4x16, .f32⟩ : BufTy).Contents (Elt F) → (⟨S4x1x16, .f32⟩ : BufTy).Contents (Elt F)),
    unary main_v2028 main_v2032 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2031 main_v2033 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2032 main_v2033 main_v2034 (mulf : (⟨S4x256x16, .f32⟩ : BufTy).Contents (Elt F) → (⟨S4x256x16, .f32⟩ : BufTy).Contents (Elt F) → (⟨S4x256x16, .f32⟩ : BufTy).Contents (Elt F)),
    binary main_v2025 main_v2034 main_v2035 (addf : (⟨S4x256x16, .f32⟩ : BufTy).Contents (Elt F) → (⟨S4x256x16, .f32⟩ : BufTy).Contents (Elt F) → (⟨S4x256x16, .f32⟩ : BufTy).Contents (Elt F)),
    unary main_arg3 main_v2036 ((extractStridedSlice S4x1x16 ![0, 101, 0] · slices_S4x512x16_S4x1x16_0_101_0) : (⟨S4x512x16, .f32⟩ : BufTy).Contents (Elt F) → (⟨S4x1x16, .f32⟩ : BufTy).Contents (Elt F)),
    reshape main_v2036 main_v2037 rfl shapeCasts_S4x1x16_S4x16,
    unary main_v2037 main_v2038 (broadcastInDim S4x1x16 ![0, 2] bcast_S4x16_S4x1x16_0_2 : (⟨S4x16, .f32⟩ : BufTy).Contents (Elt F) → (⟨S4x1x16, .f32⟩ : BufTy).Contents (Elt F)),
    unary main_v2038 main_v2039 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2035 main_v2039 main_v2040 (mulf : (⟨S4x256x16, .f32⟩ : BufTy).Contents (Elt F) → (⟨S4x256x16, .f32⟩ : BufTy).Contents (Elt F) → (⟨S4x256x16, .f32⟩ : BufTy).Contents (Elt F)),
    nullary main_cst_202 (constant S_ .f32 0x00000000#32),
    binary main_v2040 main_cst_202 main_v2041 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_203 (constantI S_ 32 101#32),
    unary main_c_203 main_v2042 (broadcastInDim S1 ![] bcast_S_S1 : (⟨S_, .i32⟩ : BufTy).Contents (Elt F) → (⟨S1, .i32⟩ : BufTy).Contents (Elt F)),
    ternary main_v2023 main_v2042 main_v2041 main_v2043 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps101_ok : (stepOps101 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step101_val (V : Valuation τ sig (Elt Ideal)) :
    after (stepOps101 (F := Ideal)) V (no_index (Proc.devRef .tc main_v2035)) = stepH 101 (by decide) (V (Proc.devRef .tc main_arg0)) (V (Proc.devRef .tc main_v3)) (V (Proc.devRef .tc main_arg2)) (V (Proc.devRef .tc main_v2015))
    ∧ after (stepOps101 (F := Ideal)) V (no_index (Proc.devRef .tc main_v2043)) = stepY 101 (by decide) (V (Proc.devRef .tc main_arg3)) (stepH 101 (by decide) (V (Proc.devRef .tc main_arg0)) (V (Proc.devRef .tc main_v3)) (V (Proc.devRef .tc main_arg2)) (V (Proc.devRef .tc main_v2015))) (V (Proc.devRef .tc main_v2023)) := by
  simp only [stepOps101]
  after_results_simp
  first | exact ⟨rfl, rfl⟩ | fail "value"
/-- Step 102 of the loop: operations 2251 … 2272 of the program. -/
abbrev stepOps102 : List (HloOp τ sig (Elt F)) :=
  [ unary main_v3 main_v2044 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2035 main_v2044 main_v2045 (mulf : (⟨S4x256x16, .f32⟩ : BufTy).Contents (Elt F) → (⟨S4x256x16, .f32⟩ : BufTy).Contents (Elt F) → (⟨S4x256x16, .f32⟩ : BufTy).Contents (Elt F)),
    unary main_arg0 main_v2046 ((extractStridedSlice S4x1x256 ![0, 102, 0] · slices_S4x512x256_S4x1x256_0_102_0) : (⟨S4x512x256, .f32⟩ : BufTy).Contents (Elt F) → (⟨S4x1x256, .f32⟩ : BufTy).Contents (Elt F)),
    reshape main_v2046 main_v2047 rfl shapeCasts_S4x1x256_S4x256,
    unary main_v2047 main_v2048 (broadcastInDim S4x256x1 ![0, 1] bcast_S4x256_S4x256x1_0_1 : (⟨S4x256, .f32⟩ : BufTy).Contents (Elt F) → (⟨S4x256x1, .f32⟩ : BufTy).Contents (Elt F)),
    unary main_arg2 main_v2049 ((extractStridedSlice S4x1x16 ![0, 102, 0] · slices_S4x512x16_S4x1x16_0_102_0) : (⟨S4x512x16, .f32⟩ : BufTy).Contents (Elt F) → (⟨S4x1x16, .f32⟩ : BufTy).Contents (Elt F)),
    reshape main_v2049 main_v2050 rfl shapeCasts_S4x1x16_S4x16,
    unary main_v2050 main_v2051 (broadcastInDim S4x1x16 ![0, 2] bcast_S4x16_S4x1x16_0_2 : (⟨S4x16, .f32⟩ : BufTy).Contents (Elt F) → (⟨S4x1x16, .f32⟩ : BufTy).Contents (Elt F)),
    unary main_v2048 main_v2052 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2051 main_v2053 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2052 main_v2053 main_v2054 (mulf : (⟨S4x256x16, .f32⟩ : BufTy).Contents (Elt F) → (⟨S4x256x16, .f32⟩ : BufTy).Contents (Elt F) → (⟨S4x256x16, .f32⟩ : BufTy).Contents (Elt F)),
    binary main_v2045 main_v2054 main_v2055 (addf : (⟨S4x256x16, .f32⟩ : BufTy).Contents (Elt F) → (⟨S4x256x16, .f32⟩ : BufTy).Contents (Elt F) → (⟨S4x256x16, .f32⟩ : BufTy).Contents (Elt F)),
    unary main_arg3 main_v2056 ((extractStridedSlice S4x1x16 ![0, 102, 0] · slices_S4x512x16_S4x1x16_0_102_0) : (⟨S4x512x16, .f32⟩ : BufTy).Contents (Elt F) → (⟨S4x1x16, .f32⟩ : BufTy).Contents (Elt F)),
    reshape main_v2056 main_v2057 rfl shapeCasts_S4x1x16_S4x16,
    unary main_v2057 main_v2058 (broadcastInDim S4x1x16 ![0, 2] bcast_S4x16_S4x1x16_0_2 : (⟨S4x16, .f32⟩ : BufTy).Contents (Elt F) → (⟨S4x1x16, .f32⟩ : BufTy).Contents (Elt F)),
    unary main_v2058 main_v2059 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2055 main_v2059 main_v2060 (mulf : (⟨S4x256x16, .f32⟩ : BufTy).Contents (Elt F) → (⟨S4x256x16, .f32⟩ : BufTy).Contents (Elt F) → (⟨S4x256x16, .f32⟩ : BufTy).Contents (Elt F)),
    nullary main_cst_204 (constant S_ .f32 0x00000000#32),
    binary main_v2060 main_cst_204 main_v2061 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_205 (constantI S_ 32 102#32),
    unary main_c_205 main_v2062 (broadcastInDim S1 ![] bcast_S_S1 : (⟨S_, .i32⟩ : BufTy).Contents (Elt F) → (⟨S1, .i32⟩ : BufTy).Contents (Elt F)),
    ternary main_v2043 main_v2062 main_v2061 main_v2063 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps102_ok : (stepOps102 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step102_val (V : Valuation τ sig (Elt Ideal)) :
    after (stepOps102 (F := Ideal)) V (no_index (Proc.devRef .tc main_v2055)) = stepH 102 (by decide) (V (Proc.devRef .tc main_arg0)) (V (Proc.devRef .tc main_v3)) (V (Proc.devRef .tc main_arg2)) (V (Proc.devRef .tc main_v2035))
    ∧ after (stepOps102 (F := Ideal)) V (no_index (Proc.devRef .tc main_v2063)) = stepY 102 (by decide) (V (Proc.devRef .tc main_arg3)) (stepH 102 (by decide) (V (Proc.devRef .tc main_arg0)) (V (Proc.devRef .tc main_v3)) (V (Proc.devRef .tc main_arg2)) (V (Proc.devRef .tc main_v2035))) (V (Proc.devRef .tc main_v2043)) := by
  simp only [stepOps102]
  after_results_simp
  first | exact ⟨rfl, rfl⟩ | fail "value"
/-- Step 103 of the loop: operations 2273 … 2294 of the program. -/
abbrev stepOps103 : List (HloOp τ sig (Elt F)) :=
  [ unary main_v3 main_v2064 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2055 main_v2064 main_v2065 (mulf : (⟨S4x256x16, .f32⟩ : BufTy).Contents (Elt F) → (⟨S4x256x16, .f32⟩ : BufTy).Contents (Elt F) → (⟨S4x256x16, .f32⟩ : BufTy).Contents (Elt F)),
    unary main_arg0 main_v2066 ((extractStridedSlice S4x1x256 ![0, 103, 0] · slices_S4x512x256_S4x1x256_0_103_0) : (⟨S4x512x256, .f32⟩ : BufTy).Contents (Elt F) → (⟨S4x1x256, .f32⟩ : BufTy).Contents (Elt F)),
    reshape main_v2066 main_v2067 rfl shapeCasts_S4x1x256_S4x256,
    unary main_v2067 main_v2068 (broadcastInDim S4x256x1 ![0, 1] bcast_S4x256_S4x256x1_0_1 : (⟨S4x256, .f32⟩ : BufTy).Contents (Elt F) → (⟨S4x256x1, .f32⟩ : BufTy).Contents (Elt F)),
    unary main_arg2 main_v2069 ((extractStridedSlice S4x1x16 ![0, 103, 0] · slices_S4x512x16_S4x1x16_0_103_0) : (⟨S4x512x16, .f32⟩ : BufTy).Contents (Elt F) → (⟨S4x1x16, .f32⟩ : BufTy).Contents (Elt F)),
    reshape main_v2069 main_v2070 rfl shapeCasts_S4x1x16_S4x16,
    unary main_v2070 main_v2071 (broadcastInDim S4x1x16 ![0, 2] bcast_S4x16_S4x1x16_0_2 : (⟨S4x16, .f32⟩ : BufTy).Contents (Elt F) → (⟨S4x1x16, .f32⟩ : BufTy).Contents (Elt F)),
    unary main_v2068 main_v2072 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2071 main_v2073 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2072 main_v2073 main_v2074 (mulf : (⟨S4x256x16, .f32⟩ : BufTy).Contents (Elt F) → (⟨S4x256x16, .f32⟩ : BufTy).Contents (Elt F) → (⟨S4x256x16, .f32⟩ : BufTy).Contents (Elt F)),
    binary main_v2065 main_v2074 main_v2075 (addf : (⟨S4x256x16, .f32⟩ : BufTy).Contents (Elt F) → (⟨S4x256x16, .f32⟩ : BufTy).Contents (Elt F) → (⟨S4x256x16, .f32⟩ : BufTy).Contents (Elt F)),
    unary main_arg3 main_v2076 ((extractStridedSlice S4x1x16 ![0, 103, 0] · slices_S4x512x16_S4x1x16_0_103_0) : (⟨S4x512x16, .f32⟩ : BufTy).Contents (Elt F) → (⟨S4x1x16, .f32⟩ : BufTy).Contents (Elt F)),
    reshape main_v2076 main_v2077 rfl shapeCasts_S4x1x16_S4x16,
    unary main_v2077 main_v2078 (broadcastInDim S4x1x16 ![0, 2] bcast_S4x16_S4x1x16_0_2 : (⟨S4x16, .f32⟩ : BufTy).Contents (Elt F) → (⟨S4x1x16, .f32⟩ : BufTy).Contents (Elt F)),
    unary main_v2078 main_v2079 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2075 main_v2079 main_v2080 (mulf : (⟨S4x256x16, .f32⟩ : BufTy).Contents (Elt F) → (⟨S4x256x16, .f32⟩ : BufTy).Contents (Elt F) → (⟨S4x256x16, .f32⟩ : BufTy).Contents (Elt F)),
    nullary main_cst_206 (constant S_ .f32 0x00000000#32),
    binary main_v2080 main_cst_206 main_v2081 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_207 (constantI S_ 32 103#32),
    unary main_c_207 main_v2082 (broadcastInDim S1 ![] bcast_S_S1 : (⟨S_, .i32⟩ : BufTy).Contents (Elt F) → (⟨S1, .i32⟩ : BufTy).Contents (Elt F)),
    ternary main_v2063 main_v2082 main_v2081 main_v2083 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps103_ok : (stepOps103 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step103_val (V : Valuation τ sig (Elt Ideal)) :
    after (stepOps103 (F := Ideal)) V (no_index (Proc.devRef .tc main_v2075)) = stepH 103 (by decide) (V (Proc.devRef .tc main_arg0)) (V (Proc.devRef .tc main_v3)) (V (Proc.devRef .tc main_arg2)) (V (Proc.devRef .tc main_v2055))
    ∧ after (stepOps103 (F := Ideal)) V (no_index (Proc.devRef .tc main_v2083)) = stepY 103 (by decide) (V (Proc.devRef .tc main_arg3)) (stepH 103 (by decide) (V (Proc.devRef .tc main_arg0)) (V (Proc.devRef .tc main_v3)) (V (Proc.devRef .tc main_arg2)) (V (Proc.devRef .tc main_v2055))) (V (Proc.devRef .tc main_v2063)) := by
  simp only [stepOps103]
  after_results_simp
  first | exact ⟨rfl, rfl⟩ | fail "value"
/-- Step 104 of the loop: operations 2295 … 2316 of the program. -/
abbrev stepOps104 : List (HloOp τ sig (Elt F)) :=
  [ unary main_v3 main_v2084 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2075 main_v2084 main_v2085 (mulf : (⟨S4x256x16, .f32⟩ : BufTy).Contents (Elt F) → (⟨S4x256x16, .f32⟩ : BufTy).Contents (Elt F) → (⟨S4x256x16, .f32⟩ : BufTy).Contents (Elt F)),
    unary main_arg0 main_v2086 ((extractStridedSlice S4x1x256 ![0, 104, 0] · slices_S4x512x256_S4x1x256_0_104_0) : (⟨S4x512x256, .f32⟩ : BufTy).Contents (Elt F) → (⟨S4x1x256, .f32⟩ : BufTy).Contents (Elt F)),
    reshape main_v2086 main_v2087 rfl shapeCasts_S4x1x256_S4x256,
    unary main_v2087 main_v2088 (broadcastInDim S4x256x1 ![0, 1] bcast_S4x256_S4x256x1_0_1 : (⟨S4x256, .f32⟩ : BufTy).Contents (Elt F) → (⟨S4x256x1, .f32⟩ : BufTy).Contents (Elt F)),
    unary main_arg2 main_v2089 ((extractStridedSlice S4x1x16 ![0, 104, 0] · slices_S4x512x16_S4x1x16_0_104_0) : (⟨S4x512x16, .f32⟩ : BufTy).Contents (Elt F) → (⟨S4x1x16, .f32⟩ : BufTy).Contents (Elt F)),
    reshape main_v2089 main_v2090 rfl shapeCasts_S4x1x16_S4x16,
    unary main_v2090 main_v2091 (broadcastInDim S4x1x16 ![0, 2] bcast_S4x16_S4x1x16_0_2 : (⟨S4x16, .f32⟩ : BufTy).Contents (Elt F) → (⟨S4x1x16, .f32⟩ : BufTy).Contents (Elt F)),
    unary main_v2088 main_v2092 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2091 main_v2093 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2092 main_v2093 main_v2094 (mulf : (⟨S4x256x16, .f32⟩ : BufTy).Contents (Elt F) → (⟨S4x256x16, .f32⟩ : BufTy).Contents (Elt F) → (⟨S4x256x16, .f32⟩ : BufTy).Contents (Elt F)),
    binary main_v2085 main_v2094 main_v2095 (addf : (⟨S4x256x16, .f32⟩ : BufTy).Contents (Elt F) → (⟨S4x256x16, .f32⟩ : BufTy).Contents (Elt F) → (⟨S4x256x16, .f32⟩ : BufTy).Contents (Elt F)),
    unary main_arg3 main_v2096 ((extractStridedSlice S4x1x16 ![0, 104, 0] · slices_S4x512x16_S4x1x16_0_104_0) : (⟨S4x512x16, .f32⟩ : BufTy).Contents (Elt F) → (⟨S4x1x16, .f32⟩ : BufTy).Contents (Elt F)),
    reshape main_v2096 main_v2097 rfl shapeCasts_S4x1x16_S4x16,
    unary main_v2097 main_v2098 (broadcastInDim S4x1x16 ![0, 2] bcast_S4x16_S4x1x16_0_2 : (⟨S4x16, .f32⟩ : BufTy).Contents (Elt F) → (⟨S4x1x16, .f32⟩ : BufTy).Contents (Elt F)),
    unary main_v2098 main_v2099 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2095 main_v2099 main_v2100 (mulf : (⟨S4x256x16, .f32⟩ : BufTy).Contents (Elt F) → (⟨S4x256x16, .f32⟩ : BufTy).Contents (Elt F) → (⟨S4x256x16, .f32⟩ : BufTy).Contents (Elt F)),
    nullary main_cst_208 (constant S_ .f32 0x00000000#32),
    binary main_v2100 main_cst_208 main_v2101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_209 (constantI S_ 32 104#32),
    unary main_c_209 main_v2102 (broadcastInDim S1 ![] bcast_S_S1 : (⟨S_, .i32⟩ : BufTy).Contents (Elt F) → (⟨S1, .i32⟩ : BufTy).Contents (Elt F)),
    ternary main_v2083 main_v2102 main_v2101 main_v2103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps104_ok : (stepOps104 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step104_val (V : Valuation τ sig (Elt Ideal)) :
    after (stepOps104 (F := Ideal)) V (no_index (Proc.devRef .tc main_v2095)) = stepH 104 (by decide) (V (Proc.devRef .tc main_arg0)) (V (Proc.devRef .tc main_v3)) (V (Proc.devRef .tc main_arg2)) (V (Proc.devRef .tc main_v2075))
    ∧ after (stepOps104 (F := Ideal)) V (no_index (Proc.devRef .tc main_v2103)) = stepY 104 (by decide) (V (Proc.devRef .tc main_arg3)) (stepH 104 (by decide) (V (Proc.devRef .tc main_arg0)) (V (Proc.devRef .tc main_v3)) (V (Proc.devRef .tc main_arg2)) (V (Proc.devRef .tc main_v2075))) (V (Proc.devRef .tc main_v2083)) := by
  simp only [stepOps104]
  after_results_simp
  first | exact ⟨rfl, rfl⟩ | fail "value"
/-- Step 105 of the loop: operations 2317 … 2338 of the program. -/
abbrev stepOps105 : List (HloOp τ sig (Elt F)) :=
  [ unary main_v3 main_v2104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2095 main_v2104 main_v2105 (mulf : (⟨S4x256x16, .f32⟩ : BufTy).Contents (Elt F) → (⟨S4x256x16, .f32⟩ : BufTy).Contents (Elt F) → (⟨S4x256x16, .f32⟩ : BufTy).Contents (Elt F)),
    unary main_arg0 main_v2106 ((extractStridedSlice S4x1x256 ![0, 105, 0] · slices_S4x512x256_S4x1x256_0_105_0) : (⟨S4x512x256, .f32⟩ : BufTy).Contents (Elt F) → (⟨S4x1x256, .f32⟩ : BufTy).Contents (Elt F)),
    reshape main_v2106 main_v2107 rfl shapeCasts_S4x1x256_S4x256,
    unary main_v2107 main_v2108 (broadcastInDim S4x256x1 ![0, 1] bcast_S4x256_S4x256x1_0_1 : (⟨S4x256, .f32⟩ : BufTy).Contents (Elt F) → (⟨S4x256x1, .f32⟩ : BufTy).Contents (Elt F)),
    unary main_arg2 main_v2109 ((extractStridedSlice S4x1x16 ![0, 105, 0] · slices_S4x512x16_S4x1x16_0_105_0) : (⟨S4x512x16, .f32⟩ : BufTy).Contents (Elt F) → (⟨S4x1x16, .f32⟩ : BufTy).Contents (Elt F)),
    reshape main_v2109 main_v2110 rfl shapeCasts_S4x1x16_S4x16,
    unary main_v2110 main_v2111 (broadcastInDim S4x1x16 ![0, 2] bcast_S4x16_S4x1x16_0_2 : (⟨S4x16, .f32⟩ : BufTy).Contents (Elt F) → (⟨S4x1x16, .f32⟩ : BufTy).Contents (Elt F)),
    unary main_v2108 main_v2112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2111 main_v2113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2112 main_v2113 main_v2114 (mulf : (⟨S4x256x16, .f32⟩ : BufTy).Contents (Elt F) → (⟨S4x256x16, .f32⟩ : BufTy).Contents (Elt F) → (⟨S4x256x16, .f32⟩ : BufTy).Contents (Elt F)),
    binary main_v2105 main_v2114 main_v2115 (addf : (⟨S4x256x16, .f32⟩ : BufTy).Contents (Elt F) → (⟨S4x256x16, .f32⟩ : BufTy).Contents (Elt F) → (⟨S4x256x16, .f32⟩ : BufTy).Contents (Elt F)),
    unary main_arg3 main_v2116 ((extractStridedSlice S4x1x16 ![0, 105, 0] · slices_S4x512x16_S4x1x16_0_105_0) : (⟨S4x512x16, .f32⟩ : BufTy).Contents (Elt F) → (⟨S4x1x16, .f32⟩ : BufTy).Contents (Elt F)),
    reshape main_v2116 main_v2117 rfl shapeCasts_S4x1x16_S4x16,
    unary main_v2117 main_v2118 (broadcastInDim S4x1x16 ![0, 2] bcast_S4x16_S4x1x16_0_2 : (⟨S4x16, .f32⟩ : BufTy).Contents (Elt F) → (⟨S4x1x16, .f32⟩ : BufTy).Contents (Elt F)),
    unary main_v2118 main_v2119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2115 main_v2119 main_v2120 (mulf : (⟨S4x256x16, .f32⟩ : BufTy).Contents (Elt F) → (⟨S4x256x16, .f32⟩ : BufTy).Contents (Elt F) → (⟨S4x256x16, .f32⟩ : BufTy).Contents (Elt F)),
    nullary main_cst_210 (constant S_ .f32 0x00000000#32),
    binary main_v2120 main_cst_210 main_v2121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_211 (constantI S_ 32 105#32),
    unary main_c_211 main_v2122 (broadcastInDim S1 ![] bcast_S_S1 : (⟨S_, .i32⟩ : BufTy).Contents (Elt F) → (⟨S1, .i32⟩ : BufTy).Contents (Elt F)),
    ternary main_v2103 main_v2122 main_v2121 main_v2123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps105_ok : (stepOps105 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step105_val (V : Valuation τ sig (Elt Ideal)) :
    after (stepOps105 (F := Ideal)) V (no_index (Proc.devRef .tc main_v2115)) = stepH 105 (by decide) (V (Proc.devRef .tc main_arg0)) (V (Proc.devRef .tc main_v3)) (V (Proc.devRef .tc main_arg2)) (V (Proc.devRef .tc main_v2095))
    ∧ after (stepOps105 (F := Ideal)) V (no_index (Proc.devRef .tc main_v2123)) = stepY 105 (by decide) (V (Proc.devRef .tc main_arg3)) (stepH 105 (by decide) (V (Proc.devRef .tc main_arg0)) (V (Proc.devRef .tc main_v3)) (V (Proc.devRef .tc main_arg2)) (V (Proc.devRef .tc main_v2095))) (V (Proc.devRef .tc main_v2103)) := by
  simp only [stepOps105]
  after_results_simp
  first | exact ⟨rfl, rfl⟩ | fail "value"
/-- Step 106 of the loop: operations 2339 … 2360 of the program. -/
abbrev stepOps106 : List (HloOp τ sig (Elt F)) :=
  [ unary main_v3 main_v2124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2115 main_v2124 main_v2125 (mulf : (⟨S4x256x16, .f32⟩ : BufTy).Contents (Elt F) → (⟨S4x256x16, .f32⟩ : BufTy).Contents (Elt F) → (⟨S4x256x16, .f32⟩ : BufTy).Contents (Elt F)),
    unary main_arg0 main_v2126 ((extractStridedSlice S4x1x256 ![0, 106, 0] · slices_S4x512x256_S4x1x256_0_106_0) : (⟨S4x512x256, .f32⟩ : BufTy).Contents (Elt F) → (⟨S4x1x256, .f32⟩ : BufTy).Contents (Elt F)),
    reshape main_v2126 main_v2127 rfl shapeCasts_S4x1x256_S4x256,
    unary main_v2127 main_v2128 (broadcastInDim S4x256x1 ![0, 1] bcast_S4x256_S4x256x1_0_1 : (⟨S4x256, .f32⟩ : BufTy).Contents (Elt F) → (⟨S4x256x1, .f32⟩ : BufTy).Contents (Elt F)),
    unary main_arg2 main_v2129 ((extractStridedSlice S4x1x16 ![0, 106, 0] · slices_S4x512x16_S4x1x16_0_106_0) : (⟨S4x512x16, .f32⟩ : BufTy).Contents (Elt F) → (⟨S4x1x16, .f32⟩ : BufTy).Contents (Elt F)),
    reshape main_v2129 main_v2130 rfl shapeCasts_S4x1x16_S4x16,
    unary main_v2130 main_v2131 (broadcastInDim S4x1x16 ![0, 2] bcast_S4x16_S4x1x16_0_2 : (⟨S4x16, .f32⟩ : BufTy).Contents (Elt F) → (⟨S4x1x16, .f32⟩ : BufTy).Contents (Elt F)),
    unary main_v2128 main_v2132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2131 main_v2133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2132 main_v2133 main_v2134 (mulf : (⟨S4x256x16, .f32⟩ : BufTy).Contents (Elt F) → (⟨S4x256x16, .f32⟩ : BufTy).Contents (Elt F) → (⟨S4x256x16, .f32⟩ : BufTy).Contents (Elt F)),
    binary main_v2125 main_v2134 main_v2135 (addf : (⟨S4x256x16, .f32⟩ : BufTy).Contents (Elt F) → (⟨S4x256x16, .f32⟩ : BufTy).Contents (Elt F) → (⟨S4x256x16, .f32⟩ : BufTy).Contents (Elt F)),
    unary main_arg3 main_v2136 ((extractStridedSlice S4x1x16 ![0, 106, 0] · slices_S4x512x16_S4x1x16_0_106_0) : (⟨S4x512x16, .f32⟩ : BufTy).Contents (Elt F) → (⟨S4x1x16, .f32⟩ : BufTy).Contents (Elt F)),
    reshape main_v2136 main_v2137 rfl shapeCasts_S4x1x16_S4x16,
    unary main_v2137 main_v2138 (broadcastInDim S4x1x16 ![0, 2] bcast_S4x16_S4x1x16_0_2 : (⟨S4x16, .f32⟩ : BufTy).Contents (Elt F) → (⟨S4x1x16, .f32⟩ : BufTy).Contents (Elt F)),
    unary main_v2138 main_v2139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2135 main_v2139 main_v2140 (mulf : (⟨S4x256x16, .f32⟩ : BufTy).Contents (Elt F) → (⟨S4x256x16, .f32⟩ : BufTy).Contents (Elt F) → (⟨S4x256x16, .f32⟩ : BufTy).Contents (Elt F)),
    nullary main_cst_212 (constant S_ .f32 0x00000000#32),
    binary main_v2140 main_cst_212 main_v2141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_213 (constantI S_ 32 106#32),
    unary main_c_213 main_v2142 (broadcastInDim S1 ![] bcast_S_S1 : (⟨S_, .i32⟩ : BufTy).Contents (Elt F) → (⟨S1, .i32⟩ : BufTy).Contents (Elt F)),
    ternary main_v2123 main_v2142 main_v2141 main_v2143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps106_ok : (stepOps106 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step106_val (V : Valuation τ sig (Elt Ideal)) :
    after (stepOps106 (F := Ideal)) V (no_index (Proc.devRef .tc main_v2135)) = stepH 106 (by decide) (V (Proc.devRef .tc main_arg0)) (V (Proc.devRef .tc main_v3)) (V (Proc.devRef .tc main_arg2)) (V (Proc.devRef .tc main_v2115))
    ∧ after (stepOps106 (F := Ideal)) V (no_index (Proc.devRef .tc main_v2143)) = stepY 106 (by decide) (V (Proc.devRef .tc main_arg3)) (stepH 106 (by decide) (V (Proc.devRef .tc main_arg0)) (V (Proc.devRef .tc main_v3)) (V (Proc.devRef .tc main_arg2)) (V (Proc.devRef .tc main_v2115))) (V (Proc.devRef .tc main_v2123)) := by
  simp only [stepOps106]
  after_results_simp
  first | exact ⟨rfl, rfl⟩ | fail "value"
/-- Step 107 of the loop: operations 2361 … 2382 of the program. -/
abbrev stepOps107 : List (HloOp τ sig (Elt F)) :=
  [ unary main_v3 main_v2144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2135 main_v2144 main_v2145 (mulf : (⟨S4x256x16, .f32⟩ : BufTy).Contents (Elt F) → (⟨S4x256x16, .f32⟩ : BufTy).Contents (Elt F) → (⟨S4x256x16, .f32⟩ : BufTy).Contents (Elt F)),
    unary main_arg0 main_v2146 ((extractStridedSlice S4x1x256 ![0, 107, 0] · slices_S4x512x256_S4x1x256_0_107_0) : (⟨S4x512x256, .f32⟩ : BufTy).Contents (Elt F) → (⟨S4x1x256, .f32⟩ : BufTy).Contents (Elt F)),
    reshape main_v2146 main_v2147 rfl shapeCasts_S4x1x256_S4x256,
    unary main_v2147 main_v2148 (broadcastInDim S4x256x1 ![0, 1] bcast_S4x256_S4x256x1_0_1 : (⟨S4x256, .f32⟩ : BufTy).Contents (Elt F) → (⟨S4x256x1, .f32⟩ : BufTy).Contents (Elt F)),
    unary main_arg2 main_v2149 ((extractStridedSlice S4x1x16 ![0, 107, 0] · slices_S4x512x16_S4x1x16_0_107_0) : (⟨S4x512x16, .f32⟩ : BufTy).Contents (Elt F) → (⟨S4x1x16, .f32⟩ : BufTy).Contents (Elt F)),
    reshape main_v2149 main_v2150 rfl shapeCasts_S4x1x16_S4x16,
    unary main_v2150 main_v2151 (broadcastInDim S4x1x16 ![0, 2] bcast_S4x16_S4x1x16_0_2 : (⟨S4x16, .f32⟩ : BufTy).Contents (Elt F) → (⟨S4x1x16, .f32⟩ : BufTy).Contents (Elt F)),
    unary main_v2148 main_v2152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2151 main_v2153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2152 main_v2153 main_v2154 (mulf : (⟨S4x256x16, .f32⟩ : BufTy).Contents (Elt F) → (⟨S4x256x16, .f32⟩ : BufTy).Contents (Elt F) → (⟨S4x256x16, .f32⟩ : BufTy).Contents (Elt F)),
    binary main_v2145 main_v2154 main_v2155 (addf : (⟨S4x256x16, .f32⟩ : BufTy).Contents (Elt F) → (⟨S4x256x16, .f32⟩ : BufTy).Contents (Elt F) → (⟨S4x256x16, .f32⟩ : BufTy).Contents (Elt F)),
    unary main_arg3 main_v2156 ((extractStridedSlice S4x1x16 ![0, 107, 0] · slices_S4x512x16_S4x1x16_0_107_0) : (⟨S4x512x16, .f32⟩ : BufTy).Contents (Elt F) → (⟨S4x1x16, .f32⟩ : BufTy).Contents (Elt F)),
    reshape main_v2156 main_v2157 rfl shapeCasts_S4x1x16_S4x16,
    unary main_v2157 main_v2158 (broadcastInDim S4x1x16 ![0, 2] bcast_S4x16_S4x1x16_0_2 : (⟨S4x16, .f32⟩ : BufTy).Contents (Elt F) → (⟨S4x1x16, .f32⟩ : BufTy).Contents (Elt F)),
    unary main_v2158 main_v2159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2155 main_v2159 main_v2160 (mulf : (⟨S4x256x16, .f32⟩ : BufTy).Contents (Elt F) → (⟨S4x256x16, .f32⟩ : BufTy).Contents (Elt F) → (⟨S4x256x16, .f32⟩ : BufTy).Contents (Elt F)),
    nullary main_cst_214 (constant S_ .f32 0x00000000#32),
    binary main_v2160 main_cst_214 main_v2161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_215 (constantI S_ 32 107#32),
    unary main_c_215 main_v2162 (broadcastInDim S1 ![] bcast_S_S1 : (⟨S_, .i32⟩ : BufTy).Contents (Elt F) → (⟨S1, .i32⟩ : BufTy).Contents (Elt F)),
    ternary main_v2143 main_v2162 main_v2161 main_v2163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps107_ok : (stepOps107 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step107_val (V : Valuation τ sig (Elt Ideal)) :
    after (stepOps107 (F := Ideal)) V (no_index (Proc.devRef .tc main_v2155)) = stepH 107 (by decide) (V (Proc.devRef .tc main_arg0)) (V (Proc.devRef .tc main_v3)) (V (Proc.devRef .tc main_arg2)) (V (Proc.devRef .tc main_v2135))
    ∧ after (stepOps107 (F := Ideal)) V (no_index (Proc.devRef .tc main_v2163)) = stepY 107 (by decide) (V (Proc.devRef .tc main_arg3)) (stepH 107 (by decide) (V (Proc.devRef .tc main_arg0)) (V (Proc.devRef .tc main_v3)) (V (Proc.devRef .tc main_arg2)) (V (Proc.devRef .tc main_v2135))) (V (Proc.devRef .tc main_v2143)) := by
  simp only [stepOps107]
  after_results_simp
  first | exact ⟨rfl, rfl⟩ | fail "value"
/-- Step 108 of the loop: operations 2383 … 2404 of the program. -/
abbrev stepOps108 : List (HloOp τ sig (Elt F)) :=
  [ unary main_v3 main_v2164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2155 main_v2164 main_v2165 (mulf : (⟨S4x256x16, .f32⟩ : BufTy).Contents (Elt F) → (⟨S4x256x16, .f32⟩ : BufTy).Contents (Elt F) → (⟨S4x256x16, .f32⟩ : BufTy).Contents (Elt F)),
    unary main_arg0 main_v2166 ((extractStridedSlice S4x1x256 ![0, 108, 0] · slices_S4x512x256_S4x1x256_0_108_0) : (⟨S4x512x256, .f32⟩ : BufTy).Contents (Elt F) → (⟨S4x1x256, .f32⟩ : BufTy).Contents (Elt F)),
    reshape main_v2166 main_v2167 rfl shapeCasts_S4x1x256_S4x256,
    unary main_v2167 main_v2168 (broadcastInDim S4x256x1 ![0, 1] bcast_S4x256_S4x256x1_0_1 : (⟨S4x256, .f32⟩ : BufTy).Contents (Elt F) → (⟨S4x256x1, .f32⟩ : BufTy).Contents (Elt F)),
    unary main_arg2 main_v2169 ((extractStridedSlice S4x1x16 ![0, 108, 0] · slices_S4x512x16_S4x1x16_0_108_0) : (⟨S4x512x16, .f32⟩ : BufTy).Contents (Elt F) → (⟨S4x1x16, .f32⟩ : BufTy).Contents (Elt F)),
    reshape main_v2169 main_v2170 rfl shapeCasts_S4x1x16_S4x16,
    unary main_v2170 main_v2171 (broadcastInDim S4x1x16 ![0, 2] bcast_S4x16_S4x1x16_0_2 : (⟨S4x16, .f32⟩ : BufTy).Contents (Elt F) → (⟨S4x1x16, .f32⟩ : BufTy).Contents (Elt F)),
    unary main_v2168 main_v2172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2171 main_v2173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2172 main_v2173 main_v2174 (mulf : (⟨S4x256x16, .f32⟩ : BufTy).Contents (Elt F) → (⟨S4x256x16, .f32⟩ : BufTy).Contents (Elt F) → (⟨S4x256x16, .f32⟩ : BufTy).Contents (Elt F)),
    binary main_v2165 main_v2174 main_v2175 (addf : (⟨S4x256x16, .f32⟩ : BufTy).Contents (Elt F) → (⟨S4x256x16, .f32⟩ : BufTy).Contents (Elt F) → (⟨S4x256x16, .f32⟩ : BufTy).Contents (Elt F)),
    unary main_arg3 main_v2176 ((extractStridedSlice S4x1x16 ![0, 108, 0] · slices_S4x512x16_S4x1x16_0_108_0) : (⟨S4x512x16, .f32⟩ : BufTy).Contents (Elt F) → (⟨S4x1x16, .f32⟩ : BufTy).Contents (Elt F)),
    reshape main_v2176 main_v2177 rfl shapeCasts_S4x1x16_S4x16,
    unary main_v2177 main_v2178 (broadcastInDim S4x1x16 ![0, 2] bcast_S4x16_S4x1x16_0_2 : (⟨S4x16, .f32⟩ : BufTy).Contents (Elt F) → (⟨S4x1x16, .f32⟩ : BufTy).Contents (Elt F)),
    unary main_v2178 main_v2179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2175 main_v2179 main_v2180 (mulf : (⟨S4x256x16, .f32⟩ : BufTy).Contents (Elt F) → (⟨S4x256x16, .f32⟩ : BufTy).Contents (Elt F) → (⟨S4x256x16, .f32⟩ : BufTy).Contents (Elt F)),
    nullary main_cst_216 (constant S_ .f32 0x00000000#32),
    binary main_v2180 main_cst_216 main_v2181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_217 (constantI S_ 32 108#32),
    unary main_c_217 main_v2182 (broadcastInDim S1 ![] bcast_S_S1 : (⟨S_, .i32⟩ : BufTy).Contents (Elt F) → (⟨S1, .i32⟩ : BufTy).Contents (Elt F)),
    ternary main_v2163 main_v2182 main_v2181 main_v2183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps108_ok : (stepOps108 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step108_val (V : Valuation τ sig (Elt Ideal)) :
    after (stepOps108 (F := Ideal)) V (no_index (Proc.devRef .tc main_v2175)) = stepH 108 (by decide) (V (Proc.devRef .tc main_arg0)) (V (Proc.devRef .tc main_v3)) (V (Proc.devRef .tc main_arg2)) (V (Proc.devRef .tc main_v2155))
    ∧ after (stepOps108 (F := Ideal)) V (no_index (Proc.devRef .tc main_v2183)) = stepY 108 (by decide) (V (Proc.devRef .tc main_arg3)) (stepH 108 (by decide) (V (Proc.devRef .tc main_arg0)) (V (Proc.devRef .tc main_v3)) (V (Proc.devRef .tc main_arg2)) (V (Proc.devRef .tc main_v2155))) (V (Proc.devRef .tc main_v2163)) := by
  simp only [stepOps108]
  after_results_simp
  first | exact ⟨rfl, rfl⟩ | fail "value"
/-- Step 109 of the loop: operations 2405 … 2426 of the program. -/
abbrev stepOps109 : List (HloOp τ sig (Elt F)) :=
  [ unary main_v3 main_v2184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2175 main_v2184 main_v2185 (mulf : (⟨S4x256x16, .f32⟩ : BufTy).Contents (Elt F) → (⟨S4x256x16, .f32⟩ : BufTy).Contents (Elt F) → (⟨S4x256x16, .f32⟩ : BufTy).Contents (Elt F)),
    unary main_arg0 main_v2186 ((extractStridedSlice S4x1x256 ![0, 109, 0] · slices_S4x512x256_S4x1x256_0_109_0) : (⟨S4x512x256, .f32⟩ : BufTy).Contents (Elt F) → (⟨S4x1x256, .f32⟩ : BufTy).Contents (Elt F)),
    reshape main_v2186 main_v2187 rfl shapeCasts_S4x1x256_S4x256,
    unary main_v2187 main_v2188 (broadcastInDim S4x256x1 ![0, 1] bcast_S4x256_S4x256x1_0_1 : (⟨S4x256, .f32⟩ : BufTy).Contents (Elt F) → (⟨S4x256x1, .f32⟩ : BufTy).Contents (Elt F)),
    unary main_arg2 main_v2189 ((extractStridedSlice S4x1x16 ![0, 109, 0] · slices_S4x512x16_S4x1x16_0_109_0) : (⟨S4x512x16, .f32⟩ : BufTy).Contents (Elt F) → (⟨S4x1x16, .f32⟩ : BufTy).Contents (Elt F)),
    reshape main_v2189 main_v2190 rfl shapeCasts_S4x1x16_S4x16,
    unary main_v2190 main_v2191 (broadcastInDim S4x1x16 ![0, 2] bcast_S4x16_S4x1x16_0_2 : (⟨S4x16, .f32⟩ : BufTy).Contents (Elt F) → (⟨S4x1x16, .f32⟩ : BufTy).Contents (Elt F)),
    unary main_v2188 main_v2192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2191 main_v2193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2192 main_v2193 main_v2194 (mulf : (⟨S4x256x16, .f32⟩ : BufTy).Contents (Elt F) → (⟨S4x256x16, .f32⟩ : BufTy).Contents (Elt F) → (⟨S4x256x16, .f32⟩ : BufTy).Contents (Elt F)),
    binary main_v2185 main_v2194 main_v2195 (addf : (⟨S4x256x16, .f32⟩ : BufTy).Contents (Elt F) → (⟨S4x256x16, .f32⟩ : BufTy).Contents (Elt F) → (⟨S4x256x16, .f32⟩ : BufTy).Contents (Elt F)),
    unary main_arg3 main_v2196 ((extractStridedSlice S4x1x16 ![0, 109, 0] · slices_S4x512x16_S4x1x16_0_109_0) : (⟨S4x512x16, .f32⟩ : BufTy).Contents (Elt F) → (⟨S4x1x16, .f32⟩ : BufTy).Contents (Elt F)),
    reshape main_v2196 main_v2197 rfl shapeCasts_S4x1x16_S4x16,
    unary main_v2197 main_v2198 (broadcastInDim S4x1x16 ![0, 2] bcast_S4x16_S4x1x16_0_2 : (⟨S4x16, .f32⟩ : BufTy).Contents (Elt F) → (⟨S4x1x16, .f32⟩ : BufTy).Contents (Elt F)),
    unary main_v2198 main_v2199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2195 main_v2199 main_v2200 (mulf : (⟨S4x256x16, .f32⟩ : BufTy).Contents (Elt F) → (⟨S4x256x16, .f32⟩ : BufTy).Contents (Elt F) → (⟨S4x256x16, .f32⟩ : BufTy).Contents (Elt F)),
    nullary main_cst_218 (constant S_ .f32 0x00000000#32),
    binary main_v2200 main_cst_218 main_v2201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_219 (constantI S_ 32 109#32),
    unary main_c_219 main_v2202 (broadcastInDim S1 ![] bcast_S_S1 : (⟨S_, .i32⟩ : BufTy).Contents (Elt F) → (⟨S1, .i32⟩ : BufTy).Contents (Elt F)),
    ternary main_v2183 main_v2202 main_v2201 main_v2203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps109_ok : (stepOps109 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step109_val (V : Valuation τ sig (Elt Ideal)) :
    after (stepOps109 (F := Ideal)) V (no_index (Proc.devRef .tc main_v2195)) = stepH 109 (by decide) (V (Proc.devRef .tc main_arg0)) (V (Proc.devRef .tc main_v3)) (V (Proc.devRef .tc main_arg2)) (V (Proc.devRef .tc main_v2175))
    ∧ after (stepOps109 (F := Ideal)) V (no_index (Proc.devRef .tc main_v2203)) = stepY 109 (by decide) (V (Proc.devRef .tc main_arg3)) (stepH 109 (by decide) (V (Proc.devRef .tc main_arg0)) (V (Proc.devRef .tc main_v3)) (V (Proc.devRef .tc main_arg2)) (V (Proc.devRef .tc main_v2175))) (V (Proc.devRef .tc main_v2183)) := by
  simp only [stepOps109]
  after_results_simp
  first | exact ⟨rfl, rfl⟩ | fail "value"
/-- Step 110 of the loop: operations 2427 … 2448 of the program. -/
abbrev stepOps110 : List (HloOp τ sig (Elt F)) :=
  [ unary main_v3 main_v2204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2195 main_v2204 main_v2205 (mulf : (⟨S4x256x16, .f32⟩ : BufTy).Contents (Elt F) → (⟨S4x256x16, .f32⟩ : BufTy).Contents (Elt F) → (⟨S4x256x16, .f32⟩ : BufTy).Contents (Elt F)),
    unary main_arg0 main_v2206 ((extractStridedSlice S4x1x256 ![0, 110, 0] · slices_S4x512x256_S4x1x256_0_110_0) : (⟨S4x512x256, .f32⟩ : BufTy).Contents (Elt F) → (⟨S4x1x256, .f32⟩ : BufTy).Contents (Elt F)),
    reshape main_v2206 main_v2207 rfl shapeCasts_S4x1x256_S4x256,
    unary main_v2207 main_v2208 (broadcastInDim S4x256x1 ![0, 1] bcast_S4x256_S4x256x1_0_1 : (⟨S4x256, .f32⟩ : BufTy).Contents (Elt F) → (⟨S4x256x1, .f32⟩ : BufTy).Contents (Elt F)),
    unary main_arg2 main_v2209 ((extractStridedSlice S4x1x16 ![0, 110, 0] · slices_S4x512x16_S4x1x16_0_110_0) : (⟨S4x512x16, .f32⟩ : BufTy).Contents (Elt F) → (⟨S4x1x16, .f32⟩ : BufTy).Contents (Elt F)),
    reshape main_v2209 main_v2210 rfl shapeCasts_S4x1x16_S4x16,
    unary main_v2210 main_v2211 (broadcastInDim S4x1x16 ![0, 2] bcast_S4x16_S4x1x16_0_2 : (⟨S4x16, .f32⟩ : BufTy).Contents (Elt F) → (⟨S4x1x16, .f32⟩ : BufTy).Contents (Elt F)),
    unary main_v2208 main_v2212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2211 main_v2213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2212 main_v2213 main_v2214 (mulf : (⟨S4x256x16, .f32⟩ : BufTy).Contents (Elt F) → (⟨S4x256x16, .f32⟩ : BufTy).Contents (Elt F) → (⟨S4x256x16, .f32⟩ : BufTy).Contents (Elt F)),
    binary main_v2205 main_v2214 main_v2215 (addf : (⟨S4x256x16, .f32⟩ : BufTy).Contents (Elt F) → (⟨S4x256x16, .f32⟩ : BufTy).Contents (Elt F) → (⟨S4x256x16, .f32⟩ : BufTy).Contents (Elt F)),
    unary main_arg3 main_v2216 ((extractStridedSlice S4x1x16 ![0, 110, 0] · slices_S4x512x16_S4x1x16_0_110_0) : (⟨S4x512x16, .f32⟩ : BufTy).Contents (Elt F) → (⟨S4x1x16, .f32⟩ : BufTy).Contents (Elt F)),
    reshape main_v2216 main_v2217 rfl shapeCasts_S4x1x16_S4x16,
    unary main_v2217 main_v2218 (broadcastInDim S4x1x16 ![0, 2] bcast_S4x16_S4x1x16_0_2 : (⟨S4x16, .f32⟩ : BufTy).Contents (Elt F) → (⟨S4x1x16, .f32⟩ : BufTy).Contents (Elt F)),
    unary main_v2218 main_v2219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2215 main_v2219 main_v2220 (mulf : (⟨S4x256x16, .f32⟩ : BufTy).Contents (Elt F) → (⟨S4x256x16, .f32⟩ : BufTy).Contents (Elt F) → (⟨S4x256x16, .f32⟩ : BufTy).Contents (Elt F)),
    nullary main_cst_220 (constant S_ .f32 0x00000000#32),
    binary main_v2220 main_cst_220 main_v2221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_221 (constantI S_ 32 110#32),
    unary main_c_221 main_v2222 (broadcastInDim S1 ![] bcast_S_S1 : (⟨S_, .i32⟩ : BufTy).Contents (Elt F) → (⟨S1, .i32⟩ : BufTy).Contents (Elt F)),
    ternary main_v2203 main_v2222 main_v2221 main_v2223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps110_ok : (stepOps110 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step110_val (V : Valuation τ sig (Elt Ideal)) :
    after (stepOps110 (F := Ideal)) V (no_index (Proc.devRef .tc main_v2215)) = stepH 110 (by decide) (V (Proc.devRef .tc main_arg0)) (V (Proc.devRef .tc main_v3)) (V (Proc.devRef .tc main_arg2)) (V (Proc.devRef .tc main_v2195))
    ∧ after (stepOps110 (F := Ideal)) V (no_index (Proc.devRef .tc main_v2223)) = stepY 110 (by decide) (V (Proc.devRef .tc main_arg3)) (stepH 110 (by decide) (V (Proc.devRef .tc main_arg0)) (V (Proc.devRef .tc main_v3)) (V (Proc.devRef .tc main_arg2)) (V (Proc.devRef .tc main_v2195))) (V (Proc.devRef .tc main_v2203)) := by
  simp only [stepOps110]
  after_results_simp
  first | exact ⟨rfl, rfl⟩ | fail "value"
/-- Step 111 of the loop: operations 2449 … 2470 of the program. -/
abbrev stepOps111 : List (HloOp τ sig (Elt F)) :=
  [ unary main_v3 main_v2224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2215 main_v2224 main_v2225 (mulf : (⟨S4x256x16, .f32⟩ : BufTy).Contents (Elt F) → (⟨S4x256x16, .f32⟩ : BufTy).Contents (Elt F) → (⟨S4x256x16, .f32⟩ : BufTy).Contents (Elt F)),
    unary main_arg0 main_v2226 ((extractStridedSlice S4x1x256 ![0, 111, 0] · slices_S4x512x256_S4x1x256_0_111_0) : (⟨S4x512x256, .f32⟩ : BufTy).Contents (Elt F) → (⟨S4x1x256, .f32⟩ : BufTy).Contents (Elt F)),
    reshape main_v2226 main_v2227 rfl shapeCasts_S4x1x256_S4x256,
    unary main_v2227 main_v2228 (broadcastInDim S4x256x1 ![0, 1] bcast_S4x256_S4x256x1_0_1 : (⟨S4x256, .f32⟩ : BufTy).Contents (Elt F) → (⟨S4x256x1, .f32⟩ : BufTy).Contents (Elt F)),
    unary main_arg2 main_v2229 ((extractStridedSlice S4x1x16 ![0, 111, 0] · slices_S4x512x16_S4x1x16_0_111_0) : (⟨S4x512x16, .f32⟩ : BufTy).Contents (Elt F) → (⟨S4x1x16, .f32⟩ : BufTy).Contents (Elt F)),
    reshape main_v2229 main_v2230 rfl shapeCasts_S4x1x16_S4x16,
    unary main_v2230 main_v2231 (broadcastInDim S4x1x16 ![0, 2] bcast_S4x16_S4x1x16_0_2 : (⟨S4x16, .f32⟩ : BufTy).Contents (Elt F) → (⟨S4x1x16, .f32⟩ : BufTy).Contents (Elt F)),
    unary main_v2228 main_v2232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2231 main_v2233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2232 main_v2233 main_v2234 (mulf : (⟨S4x256x16, .f32⟩ : BufTy).Contents (Elt F) → (⟨S4x256x16, .f32⟩ : BufTy).Contents (Elt F) → (⟨S4x256x16, .f32⟩ : BufTy).Contents (Elt F)),
    binary main_v2225 main_v2234 main_v2235 (addf : (⟨S4x256x16, .f32⟩ : BufTy).Contents (Elt F) → (⟨S4x256x16, .f32⟩ : BufTy).Contents (Elt F) → (⟨S4x256x16, .f32⟩ : BufTy).Contents (Elt F)),
    unary main_arg3 main_v2236 ((extractStridedSlice S4x1x16 ![0, 111, 0] · slices_S4x512x16_S4x1x16_0_111_0) : (⟨S4x512x16, .f32⟩ : BufTy).Contents (Elt F) → (⟨S4x1x16, .f32⟩ : BufTy).Contents (Elt F)),
    reshape main_v2236 main_v2237 rfl shapeCasts_S4x1x16_S4x16,
    unary main_v2237 main_v2238 (broadcastInDim S4x1x16 ![0, 2] bcast_S4x16_S4x1x16_0_2 : (⟨S4x16, .f32⟩ : BufTy).Contents (Elt F) → (⟨S4x1x16, .f32⟩ : BufTy).Contents (Elt F)),
    unary main_v2238 main_v2239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2235 main_v2239 main_v2240 (mulf : (⟨S4x256x16, .f32⟩ : BufTy).Contents (Elt F) → (⟨S4x256x16, .f32⟩ : BufTy).Contents (Elt F) → (⟨S4x256x16, .f32⟩ : BufTy).Contents (Elt F)),
    nullary main_cst_222 (constant S_ .f32 0x00000000#32),
    binary main_v2240 main_cst_222 main_v2241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_223 (constantI S_ 32 111#32),
    unary main_c_223 main_v2242 (broadcastInDim S1 ![] bcast_S_S1 : (⟨S_, .i32⟩ : BufTy).Contents (Elt F) → (⟨S1, .i32⟩ : BufTy).Contents (Elt F)),
    ternary main_v2223 main_v2242 main_v2241 main_v2243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps111_ok : (stepOps111 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step111_val (V : Valuation τ sig (Elt Ideal)) :
    after (stepOps111 (F := Ideal)) V (no_index (Proc.devRef .tc main_v2235)) = stepH 111 (by decide) (V (Proc.devRef .tc main_arg0)) (V (Proc.devRef .tc main_v3)) (V (Proc.devRef .tc main_arg2)) (V (Proc.devRef .tc main_v2215))
    ∧ after (stepOps111 (F := Ideal)) V (no_index (Proc.devRef .tc main_v2243)) = stepY 111 (by decide) (V (Proc.devRef .tc main_arg3)) (stepH 111 (by decide) (V (Proc.devRef .tc main_arg0)) (V (Proc.devRef .tc main_v3)) (V (Proc.devRef .tc main_arg2)) (V (Proc.devRef .tc main_v2215))) (V (Proc.devRef .tc main_v2223)) := by
  simp only [stepOps111]
  after_results_simp
  first | exact ⟨rfl, rfl⟩ | fail "value"

end Cert.ReferenceIdeal.RefRun

end
-- ==== Proof.RefTableStep07.lean ====
/-
  Steps 112 … 127 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 112 of the loop: operations 2471 … 2492 of the program. -/
abbrev stepOps112 : List (HloOp τ sig (Elt F)) :=
  [ unary main_v3 main_v2244 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2235 main_v2244 main_v2245 (mulf : (⟨S4x256x16, .f32⟩ : BufTy).Contents (Elt F) → (⟨S4x256x16, .f32⟩ : BufTy).Contents (Elt F) → (⟨S4x256x16, .f32⟩ : BufTy).Contents (Elt F)),
    unary main_arg0 main_v2246 ((extractStridedSlice S4x1x256 ![0, 112, 0] · slices_S4x512x256_S4x1x256_0_112_0) : (⟨S4x512x256, .f32⟩ : BufTy).Contents (Elt F) → (⟨S4x1x256, .f32⟩ : BufTy).Contents (Elt F)),
    reshape main_v2246 main_v2247 rfl shapeCasts_S4x1x256_S4x256,
    unary main_v2247 main_v2248 (broadcastInDim S4x256x1 ![0, 1] bcast_S4x256_S4x256x1_0_1 : (⟨S4x256, .f32⟩ : BufTy).Contents (Elt F) → (⟨S4x256x1, .f32⟩ : BufTy).Contents (Elt F)),
    unary main_arg2 main_v2249 ((extractStridedSlice S4x1x16 ![0, 112, 0] · slices_S4x512x16_S4x1x16_0_112_0) : (⟨S4x512x16, .f32⟩ : BufTy).Contents (Elt F) → (⟨S4x1x16, .f32⟩ : BufTy).Contents (Elt F)),
    reshape main_v2249 main_v2250 rfl shapeCasts_S4x1x16_S4x16,
    unary main_v2250 main_v2251 (broadcastInDim S4x1x16 ![0, 2] bcast_S4x16_S4x1x16_0_2 : (⟨S4x16, .f32⟩ : BufTy).Contents (Elt F) → (⟨S4x1x16, .f32⟩ : BufTy).Contents (Elt F)),
    unary main_v2248 main_v2252 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2251 main_v2253 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2252 main_v2253 main_v2254 (mulf : (⟨S4x256x16, .f32⟩ : BufTy).Contents (Elt F) → (⟨S4x256x16, .f32⟩ : BufTy).Contents (Elt F) → (⟨S4x256x16, .f32⟩ : BufTy).Contents (Elt F)),
    binary main_v2245 main_v2254 main_v2255 (addf : (⟨S4x256x16, .f32⟩ : BufTy).Contents (Elt F) → (⟨S4x256x16, .f32⟩ : BufTy).Contents (Elt F) → (⟨S4x256x16, .f32⟩ : BufTy).Contents (Elt F)),
    unary main_arg3 main_v2256 ((extractStridedSlice S4x1x16 ![0, 112, 0] · slices_S4x512x16_S4x1x16_0_112_0) : (⟨S4x512x16, .f32⟩ : BufTy).Contents (Elt F) → (⟨S4x1x16, .f32⟩ : BufTy).Contents (Elt F)),
    reshape main_v2256 main_v2257 rfl shapeCasts_S4x1x16_S4x16,
    unary main_v2257 main_v2258 (broadcastInDim S4x1x16 ![0, 2] bcast_S4x16_S4x1x16_0_2 : (⟨S4x16, .f32⟩ : BufTy).Contents (Elt F) → (⟨S4x1x16, .f32⟩ : BufTy).Contents (Elt F)),
    unary main_v2258 main_v2259 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2255 main_v2259 main_v2260 (mulf : (⟨S4x256x16, .f32⟩ : BufTy).Contents (Elt F) → (⟨S4x256x16, .f32⟩ : BufTy).Contents (Elt F) → (⟨S4x256x16, .f32⟩ : BufTy).Contents (Elt F)),
    nullary main_cst_224 (constant S_ .f32 0x00000000#32),
    binary main_v2260 main_cst_224 main_v2261 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_225 (constantI S_ 32 112#32),
    unary main_c_225 main_v2262 (broadcastInDim S1 ![] bcast_S_S1 : (⟨S_, .i32⟩ : BufTy).Contents (Elt F) → (⟨S1, .i32⟩ : BufTy).Contents (Elt F)),
    ternary main_v2243 main_v2262 main_v2261 main_v2263 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps112_ok : (stepOps112 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step112_val (V : Valuation τ sig (Elt Ideal)) :
    after (stepOps112 (F := Ideal)) V (no_index (Proc.devRef .tc main_v2255)) = stepH 112 (by decide) (V (Proc.devRef .tc main_arg0)) (V (Proc.devRef .tc main_v3)) (V (Proc.devRef .tc main_arg2)) (V (Proc.devRef .tc main_v2235))
    ∧ after (stepOps112 (F := Ideal)) V (no_index (Proc.devRef .tc main_v2263)) = stepY 112 (by decide) (V (Proc.devRef .tc main_arg3)) (stepH 112 (by decide) (V (Proc.devRef .tc main_arg0)) (V (Proc.devRef .tc main_v3)) (V (Proc.devRef .tc main_arg2)) (V (Proc.devRef .tc main_v2235))) (V (Proc.devRef .tc main_v2243)) := by
  simp only [stepOps112]
  after_results_simp
  first | exact ⟨rfl, rfl⟩ | fail "value"
/-- Step 113 of the loop: operations 2493 … 2514 of the program. -/
abbrev stepOps113 : List (HloOp τ sig (Elt F)) :=
  [ unary main_v3 main_v2264 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2255 main_v2264 main_v2265 (mulf : (⟨S4x256x16, .f32⟩ : BufTy).Contents (Elt F) → (⟨S4x256x16, .f32⟩ : BufTy).Contents (Elt F) → (⟨S4x256x16, .f32⟩ : BufTy).Contents (Elt F)),
    unary main_arg0 main_v2266 ((extractStridedSlice S4x1x256 ![0, 113, 0] · slices_S4x512x256_S4x1x256_0_113_0) : (⟨S4x512x256, .f32⟩ : BufTy).Contents (Elt F) → (⟨S4x1x256, .f32⟩ : BufTy).Contents (Elt F)),
    reshape main_v2266 main_v2267 rfl shapeCasts_S4x1x256_S4x256,
    unary main_v2267 main_v2268 (broadcastInDim S4x256x1 ![0, 1] bcast_S4x256_S4x256x1_0_1 : (⟨S4x256, .f32⟩ : BufTy).Contents (Elt F) → (⟨S4x256x1, .f32⟩ : BufTy).Contents (Elt F)),
    unary main_arg2 main_v2269 ((extractStridedSlice S4x1x16 ![0, 113, 0] · slices_S4x512x16_S4x1x16_0_113_0) : (⟨S4x512x16, .f32⟩ : BufTy).Contents (Elt F) → (⟨S4x1x16, .f32⟩ : BufTy).Contents (Elt F)),
    reshape main_v2269 main_v2270 rfl shapeCasts_S4x1x16_S4x16,
    unary main_v2270 main_v2271 (broadcastInDim S4x1x16 ![0, 2] bcast_S4x16_S4x1x16_0_2 : (⟨S4x16, .f32⟩ : BufTy).Contents (Elt F) → (⟨S4x1x16, .f32⟩ : BufTy).Contents (Elt F)),
    unary main_v2268 main_v2272 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2271 main_v2273 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2272 main_v2273 main_v2274 (mulf : (⟨S4x256x16, .f32⟩ : BufTy).Contents (Elt F) → (⟨S4x256x16, .f32⟩ : BufTy).Contents (Elt F) → (⟨S4x256x16, .f32⟩ : BufTy).Contents (Elt F)),
    binary main_v2265 main_v2274 main_v2275 (addf : (⟨S4x256x16, .f32⟩ : BufTy).Contents (Elt F) → (⟨S4x256x16, .f32⟩ : BufTy).Contents (Elt F) → (⟨S4x256x16, .f32⟩ : BufTy).Contents (Elt F)),
    unary main_arg3 main_v2276 ((extractStridedSlice S4x1x16 ![0, 113, 0] · slices_S4x512x16_S4x1x16_0_113_0) : (⟨S4x512x16, .f32⟩ : BufTy).Contents (Elt F) → (⟨S4x1x16, .f32⟩ : BufTy).Contents (Elt F)),
    reshape main_v2276 main_v2277 rfl shapeCasts_S4x1x16_S4x16,
    unary main_v2277 main_v2278 (broadcastInDim S4x1x16 ![0, 2] bcast_S4x16_S4x1x16_0_2 : (⟨S4x16, .f32⟩ : BufTy).Contents (Elt F) → (⟨S4x1x16, .f32⟩ : BufTy).Contents (Elt F)),
    unary main_v2278 main_v2279 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2275 main_v2279 main_v2280 (mulf : (⟨S4x256x16, .f32⟩ : BufTy).Contents (Elt F) → (⟨S4x256x16, .f32⟩ : BufTy).Contents (Elt F) → (⟨S4x256x16, .f32⟩ : BufTy).Contents (Elt F)),
    nullary main_cst_226 (constant S_ .f32 0x00000000#32),
    binary main_v2280 main_cst_226 main_v2281 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_227 (constantI S_ 32 113#32),
    unary main_c_227 main_v2282 (broadcastInDim S1 ![] bcast_S_S1 : (⟨S_, .i32⟩ : BufTy).Contents (Elt F) → (⟨S1, .i32⟩ : BufTy).Contents (Elt F)),
    ternary main_v2263 main_v2282 main_v2281 main_v2283 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps113_ok : (stepOps113 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step113_val (V : Valuation τ sig (Elt Ideal)) :
    after (stepOps113 (F := Ideal)) V (no_index (Proc.devRef .tc main_v2275)) = stepH 113 (by decide) (V (Proc.devRef .tc main_arg0)) (V (Proc.devRef .tc main_v3)) (V (Proc.devRef .tc main_arg2)) (V (Proc.devRef .tc main_v2255))
    ∧ after (stepOps113 (F := Ideal)) V (no_index (Proc.devRef .tc main_v2283)) = stepY 113 (by decide) (V (Proc.devRef .tc main_arg3)) (stepH 113 (by decide) (V (Proc.devRef .tc main_arg0)) (V (Proc.devRef .tc main_v3)) (V (Proc.devRef .tc main_arg2)) (V (Proc.devRef .tc main_v2255))) (V (Proc.devRef .tc main_v2263)) := by
  simp only [stepOps113]
  after_results_simp
  first | exact ⟨rfl, rfl⟩ | fail "value"
/-- Step 114 of the loop: operations 2515 … 2536 of the program. -/
abbrev stepOps114 : List (HloOp τ sig (Elt F)) :=
  [ unary main_v3 main_v2284 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2275 main_v2284 main_v2285 (mulf : (⟨S4x256x16, .f32⟩ : BufTy).Contents (Elt F) → (⟨S4x256x16, .f32⟩ : BufTy).Contents (Elt F) → (⟨S4x256x16, .f32⟩ : BufTy).Contents (Elt F)),
    unary main_arg0 main_v2286 ((extractStridedSlice S4x1x256 ![0, 114, 0] · slices_S4x512x256_S4x1x256_0_114_0) : (⟨S4x512x256, .f32⟩ : BufTy).Contents (Elt F) → (⟨S4x1x256, .f32⟩ : BufTy).Contents (Elt F)),
    reshape main_v2286 main_v2287 rfl shapeCasts_S4x1x256_S4x256,
    unary main_v2287 main_v2288 (broadcastInDim S4x256x1 ![0, 1] bcast_S4x256_S4x256x1_0_1 : (⟨S4x256, .f32⟩ : BufTy).Contents (Elt F) → (⟨S4x256x1, .f32⟩ : BufTy).Contents (Elt F)),
    unary main_arg2 main_v2289 ((extractStridedSlice S4x1x16 ![0, 114, 0] · slices_S4x512x16_S4x1x16_0_114_0) : (⟨S4x512x16, .f32⟩ : BufTy).Contents (Elt F) → (⟨S4x1x16, .f32⟩ : BufTy).Contents (Elt F)),
    reshape main_v2289 main_v2290 rfl shapeCasts_S4x1x16_S4x16,
    unary main_v2290 main_v2291 (broadcastInDim S4x1x16 ![0, 2] bcast_S4x16_S4x1x16_0_2 : (⟨S4x16, .f32⟩ : BufTy).Contents (Elt F) → (⟨S4x1x16, .f32⟩ : BufTy).Contents (Elt F)),
    unary main_v2288 main_v2292 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2291 main_v2293 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2292 main_v2293 main_v2294 (mulf : (⟨S4x256x16, .f32⟩ : BufTy).Contents (Elt F) → (⟨S4x256x16, .f32⟩ : BufTy).Contents (Elt F) → (⟨S4x256x16, .f32⟩ : BufTy).Contents (Elt F)),
    binary main_v2285 main_v2294 main_v2295 (addf : (⟨S4x256x16, .f32⟩ : BufTy).Contents (Elt F) → (⟨S4x256x16, .f32⟩ : BufTy).Contents (Elt F) → (⟨S4x256x16, .f32⟩ : BufTy).Contents (Elt F)),
    unary main_arg3 main_v2296 ((extractStridedSlice S4x1x16 ![0, 114, 0] · slices_S4x512x16_S4x1x16_0_114_0) : (⟨S4x512x16, .f32⟩ : BufTy).Contents (Elt F) → (⟨S4x1x16, .f32⟩ : BufTy).Contents (Elt F)),
    reshape main_v2296 main_v2297 rfl shapeCasts_S4x1x16_S4x16,
    unary main_v2297 main_v2298 (broadcastInDim S4x1x16 ![0, 2] bcast_S4x16_S4x1x16_0_2 : (⟨S4x16, .f32⟩ : BufTy).Contents (Elt F) → (⟨S4x1x16, .f32⟩ : BufTy).Contents (Elt F)),
    unary main_v2298 main_v2299 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2295 main_v2299 main_v2300 (mulf : (⟨S4x256x16, .f32⟩ : BufTy).Contents (Elt F) → (⟨S4x256x16, .f32⟩ : BufTy).Contents (Elt F) → (⟨S4x256x16, .f32⟩ : BufTy).Contents (Elt F)),
    nullary main_cst_228 (constant S_ .f32 0x00000000#32),
    binary main_v2300 main_cst_228 main_v2301 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_229 (constantI S_ 32 114#32),
    unary main_c_229 main_v2302 (broadcastInDim S1 ![] bcast_S_S1 : (⟨S_, .i32⟩ : BufTy).Contents (Elt F) → (⟨S1, .i32⟩ : BufTy).Contents (Elt F)),
    ternary main_v2283 main_v2302 main_v2301 main_v2303 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps114_ok : (stepOps114 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step114_val (V : Valuation τ sig (Elt Ideal)) :
    after (stepOps114 (F := Ideal)) V (no_index (Proc.devRef .tc main_v2295)) = stepH 114 (by decide) (V (Proc.devRef .tc main_arg0)) (V (Proc.devRef .tc main_v3)) (V (Proc.devRef .tc main_arg2)) (V (Proc.devRef .tc main_v2275))
    ∧ after (stepOps114 (F := Ideal)) V (no_index (Proc.devRef .tc main_v2303)) = stepY 114 (by decide) (V (Proc.devRef .tc main_arg3)) (stepH 114 (by decide) (V (Proc.devRef .tc main_arg0)) (V (Proc.devRef .tc main_v3)) (V (Proc.devRef .tc main_arg2)) (V (Proc.devRef .tc main_v2275))) (V (Proc.devRef .tc main_v2283)) := by
  simp only [stepOps114]
  after_results_simp
  first | exact ⟨rfl, rfl⟩ | fail "value"
/-- Step 115 of the loop: operations 2537 … 2558 of the program. -/
abbrev stepOps115 : List (HloOp τ sig (Elt F)) :=
  [ unary main_v3 main_v2304 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2295 main_v2304 main_v2305 (mulf : (⟨S4x256x16, .f32⟩ : BufTy).Contents (Elt F) → (⟨S4x256x16, .f32⟩ : BufTy).Contents (Elt F) → (⟨S4x256x16, .f32⟩ : BufTy).Contents (Elt F)),
    unary main_arg0 main_v2306 ((extractStridedSlice S4x1x256 ![0, 115, 0] · slices_S4x512x256_S4x1x256_0_115_0) : (⟨S4x512x256, .f32⟩ : BufTy).Contents (Elt F) → (⟨S4x1x256, .f32⟩ : BufTy).Contents (Elt F)),
    reshape main_v2306 main_v2307 rfl shapeCasts_S4x1x256_S4x256,
    unary main_v2307 main_v2308 (broadcastInDim S4x256x1 ![0, 1] bcast_S4x256_S4x256x1_0_1 : (⟨S4x256, .f32⟩ : BufTy).Contents (Elt F) → (⟨S4x256x1, .f32⟩ : BufTy).Contents (Elt F)),
    unary main_arg2 main_v2309 ((extractStridedSlice S4x1x16 ![0, 115, 0] · slices_S4x512x16_S4x1x16_0_115_0) : (⟨S4x512x16, .f32⟩ : BufTy).Contents (Elt F) → (⟨S4x1x16, .f32⟩ : BufTy).Contents (Elt F)),
    reshape main_v2309 main_v2310 rfl shapeCasts_S4x1x16_S4x16,
    unary main_v2310 main_v2311 (broadcastInDim S4x1x16 ![0, 2] bcast_S4x16_S4x1x16_0_2 : (⟨S4x16, .f32⟩ : BufTy).Contents (Elt F) → (⟨S4x1x16, .f32⟩ : BufTy).Contents (Elt F)),
    unary main_v2308 main_v2312 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2311 main_v2313 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2312 main_v2313 main_v2314 (mulf : (⟨S4x256x16, .f32⟩ : BufTy).Contents (Elt F) → (⟨S4x256x16, .f32⟩ : BufTy).Contents (Elt F) → (⟨S4x256x16, .f32⟩ : BufTy).Contents (Elt F)),
    binary main_v2305 main_v2314 main_v2315 (addf : (⟨S4x256x16, .f32⟩ : BufTy).Contents (Elt F) → (⟨S4x256x16, .f32⟩ : BufTy).Contents (Elt F) → (⟨S4x256x16, .f32⟩ : BufTy).Contents (Elt F)),
    unary main_arg3 main_v2316 ((extractStridedSlice S4x1x16 ![0, 115, 0] · slices_S4x512x16_S4x1x16_0_115_0) : (⟨S4x512x16, .f32⟩ : BufTy).Contents (Elt F) → (⟨S4x1x16, .f32⟩ : BufTy).Contents (Elt F)),
    reshape main_v2316 main_v2317 rfl shapeCasts_S4x1x16_S4x16,
    unary main_v2317 main_v2318 (broadcastInDim S4x1x16 ![0, 2] bcast_S4x16_S4x1x16_0_2 : (⟨S4x16, .f32⟩ : BufTy).Contents (Elt F) → (⟨S4x1x16, .f32⟩ : BufTy).Contents (Elt F)),
    unary main_v2318 main_v2319 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2315 main_v2319 main_v2320 (mulf : (⟨S4x256x16, .f32⟩ : BufTy).Contents (Elt F) → (⟨S4x256x16, .f32⟩ : BufTy).Contents (Elt F) → (⟨S4x256x16, .f32⟩ : BufTy).Contents (Elt F)),
    nullary main_cst_230 (constant S_ .f32 0x00000000#32),
    binary main_v2320 main_cst_230 main_v2321 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_231 (constantI S_ 32 115#32),
    unary main_c_231 main_v2322 (broadcastInDim S1 ![] bcast_S_S1 : (⟨S_, .i32⟩ : BufTy).Contents (Elt F) → (⟨S1, .i32⟩ : BufTy).Contents (Elt F)),
    ternary main_v2303 main_v2322 main_v2321 main_v2323 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps115_ok : (stepOps115 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step115_val (V : Valuation τ sig (Elt Ideal)) :
    after (stepOps115 (F := Ideal)) V (no_index (Proc.devRef .tc main_v2315)) = stepH 115 (by decide) (V (Proc.devRef .tc main_arg0)) (V (Proc.devRef .tc main_v3)) (V (Proc.devRef .tc main_arg2)) (V (Proc.devRef .tc main_v2295))
    ∧ after (stepOps115 (F := Ideal)) V (no_index (Proc.devRef .tc main_v2323)) = stepY 115 (by decide) (V (Proc.devRef .tc main_arg3)) (stepH 115 (by decide) (V (Proc.devRef .tc main_arg0)) (V (Proc.devRef .tc main_v3)) (V (Proc.devRef .tc main_arg2)) (V (Proc.devRef .tc main_v2295))) (V (Proc.devRef .tc main_v2303)) := by
  simp only [stepOps115]
  after_results_simp
  first | exact ⟨rfl, rfl⟩ | fail "value"
/-- Step 116 of the loop: operations 2559 … 2580 of the program. -/
abbrev stepOps116 : List (HloOp τ sig (Elt F)) :=
  [ unary main_v3 main_v2324 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2315 main_v2324 main_v2325 (mulf : (⟨S4x256x16, .f32⟩ : BufTy).Contents (Elt F) → (⟨S4x256x16, .f32⟩ : BufTy).Contents (Elt F) → (⟨S4x256x16, .f32⟩ : BufTy).Contents (Elt F)),
    unary main_arg0 main_v2326 ((extractStridedSlice S4x1x256 ![0, 116, 0] · slices_S4x512x256_S4x1x256_0_116_0) : (⟨S4x512x256, .f32⟩ : BufTy).Contents (Elt F) → (⟨S4x1x256, .f32⟩ : BufTy).Contents (Elt F)),
    reshape main_v2326 main_v2327 rfl shapeCasts_S4x1x256_S4x256,
    unary main_v2327 main_v2328 (broadcastInDim S4x256x1 ![0, 1] bcast_S4x256_S4x256x1_0_1 : (⟨S4x256, .f32⟩ : BufTy).Contents (Elt F) → (⟨S4x256x1, .f32⟩ : BufTy).Contents (Elt F)),
    unary main_arg2 main_v2329 ((extractStridedSlice S4x1x16 ![0, 116, 0] · slices_S4x512x16_S4x1x16_0_116_0) : (⟨S4x512x16, .f32⟩ : BufTy).Contents (Elt F) → (⟨S4x1x16, .f32⟩ : BufTy).Contents (Elt F)),
    reshape main_v2329 main_v2330 rfl shapeCasts_S4x1x16_S4x16,
    unary main_v2330 main_v2331 (broadcastInDim S4x1x16 ![0, 2] bcast_S4x16_S4x1x16_0_2 : (⟨S4x16, .f32⟩ : BufTy).Contents (Elt F) → (⟨S4x1x16, .f32⟩ : BufTy).Contents (Elt F)),
    unary main_v2328 main_v2332 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2331 main_v2333 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2332 main_v2333 main_v2334 (mulf : (⟨S4x256x16, .f32⟩ : BufTy).Contents (Elt F) → (⟨S4x256x16, .f32⟩ : BufTy).Contents (Elt F) → (⟨S4x256x16, .f32⟩ : BufTy).Contents (Elt F)),
    binary main_v2325 main_v2334 main_v2335 (addf : (⟨S4x256x16, .f32⟩ : BufTy).Contents (Elt F) → (⟨S4x256x16, .f32⟩ : BufTy).Contents (Elt F) → (⟨S4x256x16, .f32⟩ : BufTy).Contents (Elt F)),
    unary main_arg3 main_v2336 ((extractStridedSlice S4x1x16 ![0, 116, 0] · slices_S4x512x16_S4x1x16_0_116_0) : (⟨S4x512x16, .f32⟩ : BufTy).Contents (Elt F) → (⟨S4x1x16, .f32⟩ : BufTy).Contents (Elt F)),
    reshape main_v2336 main_v2337 rfl shapeCasts_S4x1x16_S4x16,
    unary main_v2337 main_v2338 (broadcastInDim S4x1x16 ![0, 2] bcast_S4x16_S4x1x16_0_2 : (⟨S4x16, .f32⟩ : BufTy).Contents (Elt F) → (⟨S4x1x16, .f32⟩ : BufTy).Contents (Elt F)),
    unary main_v2338 main_v2339 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2335 main_v2339 main_v2340 (mulf : (⟨S4x256x16, .f32⟩ : BufTy).Contents (Elt F) → (⟨S4x256x16, .f32⟩ : BufTy).Contents (Elt F) → (⟨S4x256x16, .f32⟩ : BufTy).Contents (Elt F)),
    nullary main_cst_232 (constant S_ .f32 0x00000000#32),
    binary main_v2340 main_cst_232 main_v2341 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_233 (constantI S_ 32 116#32),
    unary main_c_233 main_v2342 (broadcastInDim S1 ![] bcast_S_S1 : (⟨S_, .i32⟩ : BufTy).Contents (Elt F) → (⟨S1, .i32⟩ : BufTy).Contents (Elt F)),
    ternary main_v2323 main_v2342 main_v2341 main_v2343 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps116_ok : (stepOps116 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step116_val (V : Valuation τ sig (Elt Ideal)) :
    after (stepOps116 (F := Ideal)) V (no_index (Proc.devRef .tc main_v2335)) = stepH 116 (by decide) (V (Proc.devRef .tc main_arg0)) (V (Proc.devRef .tc main_v3)) (V (Proc.devRef .tc main_arg2)) (V (Proc.devRef .tc main_v2315))
    ∧ after (stepOps116 (F := Ideal)) V (no_index (Proc.devRef .tc main_v2343)) = stepY 116 (by decide) (V (Proc.devRef .tc main_arg3)) (stepH 116 (by decide) (V (Proc.devRef .tc main_arg0)) (V (Proc.devRef .tc main_v3)) (V (Proc.devRef .tc main_arg2)) (V (Proc.devRef .tc main_v2315))) (V (Proc.devRef .tc main_v2323)) := by
  simp only [stepOps116]
  after_results_simp
  first | exact ⟨rfl, rfl⟩ | fail "value"
/-- Step 117 of the loop: operations 2581 … 2602 of the program. -/
abbrev stepOps117 : List (HloOp τ sig (Elt F)) :=
  [ unary main_v3 main_v2344 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2335 main_v2344 main_v2345 (mulf : (⟨S4x256x16, .f32⟩ : BufTy).Contents (Elt F) → (⟨S4x256x16, .f32⟩ : BufTy).Contents (Elt F) → (⟨S4x256x16, .f32⟩ : BufTy).Contents (Elt F)),
    unary main_arg0 main_v2346 ((extractStridedSlice S4x1x256 ![0, 117, 0] · slices_S4x512x256_S4x1x256_0_117_0) : (⟨S4x512x256, .f32⟩ : BufTy).Contents (Elt F) → (⟨S4x1x256, .f32⟩ : BufTy).Contents (Elt F)),
    reshape main_v2346 main_v2347 rfl shapeCasts_S4x1x256_S4x256,
    unary main_v2347 main_v2348 (broadcastInDim S4x256x1 ![0, 1] bcast_S4x256_S4x256x1_0_1 : (⟨S4x256, .f32⟩ : BufTy).Contents (Elt F) → (⟨S4x256x1, .f32⟩ : BufTy).Contents (Elt F)),
    unary main_arg2 main_v2349 ((extractStridedSlice S4x1x16 ![0, 117, 0] · slices_S4x512x16_S4x1x16_0_117_0) : (⟨S4x512x16, .f32⟩ : BufTy).Contents (Elt F) → (⟨S4x1x16, .f32⟩ : BufTy).Contents (Elt F)),
    reshape main_v2349 main_v2350 rfl shapeCasts_S4x1x16_S4x16,
    unary main_v2350 main_v2351 (broadcastInDim S4x1x16 ![0, 2] bcast_S4x16_S4x1x16_0_2 : (⟨S4x16, .f32⟩ : BufTy).Contents (Elt F) → (⟨S4x1x16, .f32⟩ : BufTy).Contents (Elt F)),
    unary main_v2348 main_v2352 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2351 main_v2353 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2352 main_v2353 main_v2354 (mulf : (⟨S4x256x16, .f32⟩ : BufTy).Contents (Elt F) → (⟨S4x256x16, .f32⟩ : BufTy).Contents (Elt F) → (⟨S4x256x16, .f32⟩ : BufTy).Contents (Elt F)),
    binary main_v2345 main_v2354 main_v2355 (addf : (⟨S4x256x16, .f32⟩ : BufTy).Contents (Elt F) → (⟨S4x256x16, .f32⟩ : BufTy).Contents (Elt F) → (⟨S4x256x16, .f32⟩ : BufTy).Contents (Elt F)),
    unary main_arg3 main_v2356 ((extractStridedSlice S4x1x16 ![0, 117, 0] · slices_S4x512x16_S4x1x16_0_117_0) : (⟨S4x512x16, .f32⟩ : BufTy).Contents (Elt F) → (⟨S4x1x16, .f32⟩ : BufTy).Contents (Elt F)),
    reshape main_v2356 main_v2357 rfl shapeCasts_S4x1x16_S4x16,
    unary main_v2357 main_v2358 (broadcastInDim S4x1x16 ![0, 2] bcast_S4x16_S4x1x16_0_2 : (⟨S4x16, .f32⟩ : BufTy).Contents (Elt F) → (⟨S4x1x16, .f32⟩ : BufTy).Contents (Elt F)),
    unary main_v2358 main_v2359 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2355 main_v2359 main_v2360 (mulf : (⟨S4x256x16, .f32⟩ : BufTy).Contents (Elt F) → (⟨S4x256x16, .f32⟩ : BufTy).Contents (Elt F) → (⟨S4x256x16, .f32⟩ : BufTy).Contents (Elt F)),
    nullary main_cst_234 (constant S_ .f32 0x00000000#32),
    binary main_v2360 main_cst_234 main_v2361 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_235 (constantI S_ 32 117#32),
    unary main_c_235 main_v2362 (broadcastInDim S1 ![] bcast_S_S1 : (⟨S_, .i32⟩ : BufTy).Contents (Elt F) → (⟨S1, .i32⟩ : BufTy).Contents (Elt F)),
    ternary main_v2343 main_v2362 main_v2361 main_v2363 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps117_ok : (stepOps117 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step117_val (V : Valuation τ sig (Elt Ideal)) :
    after (stepOps117 (F := Ideal)) V (no_index (Proc.devRef .tc main_v2355)) = stepH 117 (by decide) (V (Proc.devRef .tc main_arg0)) (V (Proc.devRef .tc main_v3)) (V (Proc.devRef .tc main_arg2)) (V (Proc.devRef .tc main_v2335))
    ∧ after (stepOps117 (F := Ideal)) V (no_index (Proc.devRef .tc main_v2363)) = stepY 117 (by decide) (V (Proc.devRef .tc main_arg3)) (stepH 117 (by decide) (V (Proc.devRef .tc main_arg0)) (V (Proc.devRef .tc main_v3)) (V (Proc.devRef .tc main_arg2)) (V (Proc.devRef .tc main_v2335))) (V (Proc.devRef .tc main_v2343)) := by
  simp only [stepOps117]
  after_results_simp
  first | exact ⟨rfl, rfl⟩ | fail "value"
/-- Step 118 of the loop: operations 2603 … 2624 of the program. -/
abbrev stepOps118 : List (HloOp τ sig (Elt F)) :=
  [ unary main_v3 main_v2364 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2355 main_v2364 main_v2365 (mulf : (⟨S4x256x16, .f32⟩ : BufTy).Contents (Elt F) → (⟨S4x256x16, .f32⟩ : BufTy).Contents (Elt F) → (⟨S4x256x16, .f32⟩ : BufTy).Contents (Elt F)),
    unary main_arg0 main_v2366 ((extractStridedSlice S4x1x256 ![0, 118, 0] · slices_S4x512x256_S4x1x256_0_118_0) : (⟨S4x512x256, .f32⟩ : BufTy).Contents (Elt F) → (⟨S4x1x256, .f32⟩ : BufTy).Contents (Elt F)),
    reshape main_v2366 main_v2367 rfl shapeCasts_S4x1x256_S4x256,
    unary main_v2367 main_v2368 (broadcastInDim S4x256x1 ![0, 1] bcast_S4x256_S4x256x1_0_1 : (⟨S4x256, .f32⟩ : BufTy).Contents (Elt F) → (⟨S4x256x1, .f32⟩ : BufTy).Contents (Elt F)),
    unary main_arg2 main_v2369 ((extractStridedSlice S4x1x16 ![0, 118, 0] · slices_S4x512x16_S4x1x16_0_118_0) : (⟨S4x512x16, .f32⟩ : BufTy).Contents (Elt F) → (⟨S4x1x16, .f32⟩ : BufTy).Contents (Elt F)),
    reshape main_v2369 main_v2370 rfl shapeCasts_S4x1x16_S4x16,
    unary main_v2370 main_v2371 (broadcastInDim S4x1x16 ![0, 2] bcast_S4x16_S4x1x16_0_2 : (⟨S4x16, .f32⟩ : BufTy).Contents (Elt F) → (⟨S4x1x16, .f32⟩ : BufTy).Contents (Elt F)),
    unary main_v2368 main_v2372 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2371 main_v2373 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2372 main_v2373 main_v2374 (mulf : (⟨S4x256x16, .f32⟩ : BufTy).Contents (Elt F) → (⟨S4x256x16, .f32⟩ : BufTy).Contents (Elt F) → (⟨S4x256x16, .f32⟩ : BufTy).Contents (Elt F)),
    binary main_v2365 main_v2374 main_v2375 (addf : (⟨S4x256x16, .f32⟩ : BufTy).Contents (Elt F) → (⟨S4x256x16, .f32⟩ : BufTy).Contents (Elt F) → (⟨S4x256x16, .f32⟩ : BufTy).Contents (Elt F)),
    unary main_arg3 main_v2376 ((extractStridedSlice S4x1x16 ![0, 118, 0] · slices_S4x512x16_S4x1x16_0_118_0) : (⟨S4x512x16, .f32⟩ : BufTy).Contents (Elt F) → (⟨S4x1x16, .f32⟩ : BufTy).Contents (Elt F)),
    reshape main_v2376 main_v2377 rfl shapeCasts_S4x1x16_S4x16,
    unary main_v2377 main_v2378 (broadcastInDim S4x1x16 ![0, 2] bcast_S4x16_S4x1x16_0_2 : (⟨S4x16, .f32⟩ : BufTy).Contents (Elt F) → (⟨S4x1x16, .f32⟩ : BufTy).Contents (Elt F)),
    unary main_v2378 main_v2379 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2375 main_v2379 main_v2380 (mulf : (⟨S4x256x16, .f32⟩ : BufTy).Contents (Elt F) → (⟨S4x256x16, .f32⟩ : BufTy).Contents (Elt F) → (⟨S4x256x16, .f32⟩ : BufTy).Contents (Elt F)),
    nullary main_cst_236 (constant S_ .f32 0x00000000#32),
    binary main_v2380 main_cst_236 main_v2381 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_237 (constantI S_ 32 118#32),
    unary main_c_237 main_v2382 (broadcastInDim S1 ![] bcast_S_S1 : (⟨S_, .i32⟩ : BufTy).Contents (Elt F) → (⟨S1, .i32⟩ : BufTy).Contents (Elt F)),
    ternary main_v2363 main_v2382 main_v2381 main_v2383 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps118_ok : (stepOps118 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step118_val (V : Valuation τ sig (Elt Ideal)) :
    after (stepOps118 (F := Ideal)) V (no_index (Proc.devRef .tc main_v2375)) = stepH 118 (by decide) (V (Proc.devRef .tc main_arg0)) (V (Proc.devRef .tc main_v3)) (V (Proc.devRef .tc main_arg2)) (V (Proc.devRef .tc main_v2355))
    ∧ after (stepOps118 (F := Ideal)) V (no_index (Proc.devRef .tc main_v2383)) = stepY 118 (by decide) (V (Proc.devRef .tc main_arg3)) (stepH 118 (by decide) (V (Proc.devRef .tc main_arg0)) (V (Proc.devRef .tc main_v3)) (V (Proc.devRef .tc main_arg2)) (V (Proc.devRef .tc main_v2355))) (V (Proc.devRef .tc main_v2363)) := by
  simp only [stepOps118]
  after_results_simp
  first | exact ⟨rfl, rfl⟩ | fail "value"
/-- Step 119 of the loop: operations 2625 … 2646 of the program. -/
abbrev stepOps119 : List (HloOp τ sig (Elt F)) :=
  [ unary main_v3 main_v2384 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2375 main_v2384 main_v2385 (mulf : (⟨S4x256x16, .f32⟩ : BufTy).Contents (Elt F) → (⟨S4x256x16, .f32⟩ : BufTy).Contents (Elt F) → (⟨S4x256x16, .f32⟩ : BufTy).Contents (Elt F)),
    unary main_arg0 main_v2386 ((extractStridedSlice S4x1x256 ![0, 119, 0] · slices_S4x512x256_S4x1x256_0_119_0) : (⟨S4x512x256, .f32⟩ : BufTy).Contents (Elt F) → (⟨S4x1x256, .f32⟩ : BufTy).Contents (Elt F)),
    reshape main_v2386 main_v2387 rfl shapeCasts_S4x1x256_S4x256,
    unary main_v2387 main_v2388 (broadcastInDim S4x256x1 ![0, 1] bcast_S4x256_S4x256x1_0_1 : (⟨S4x256, .f32⟩ : BufTy).Contents (Elt F) → (⟨S4x256x1, .f32⟩ : BufTy).Contents (Elt F)),
    unary main_arg2 main_v2389 ((extractStridedSlice S4x1x16 ![0, 119, 0] · slices_S4x512x16_S4x1x16_0_119_0) : (⟨S4x512x16, .f32⟩ : BufTy).Contents (Elt F) → (⟨S4x1x16, .f32⟩ : BufTy).Contents (Elt F)),
    reshape main_v2389 main_v2390 rfl shapeCasts_S4x1x16_S4x16,
    unary main_v2390 main_v2391 (broadcastInDim S4x1x16 ![0, 2] bcast_S4x16_S4x1x16_0_2 : (⟨S4x16, .f32⟩ : BufTy).Contents (Elt F) → (⟨S4x1x16, .f32⟩ : BufTy).Contents (Elt F)),
    unary main_v2388 main_v2392 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2391 main_v2393 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2392 main_v2393 main_v2394 (mulf : (⟨S4x256x16, .f32⟩ : BufTy).Contents (Elt F) → (⟨S4x256x16, .f32⟩ : BufTy).Contents (Elt F) → (⟨S4x256x16, .f32⟩ : BufTy).Contents (Elt F)),
    binary main_v2385 main_v2394 main_v2395 (addf : (⟨S4x256x16, .f32⟩ : BufTy).Contents (Elt F) → (⟨S4x256x16, .f32⟩ : BufTy).Contents (Elt F) → (⟨S4x256x16, .f32⟩ : BufTy).Contents (Elt F)),
    unary main_arg3 main_v2396 ((extractStridedSlice S4x1x16 ![0, 119, 0] · slices_S4x512x16_S4x1x16_0_119_0) : (⟨S4x512x16, .f32⟩ : BufTy).Contents (Elt F) → (⟨S4x1x16, .f32⟩ : BufTy).Contents (Elt F)),
    reshape main_v2396 main_v2397 rfl shapeCasts_S4x1x16_S4x16,
    unary main_v2397 main_v2398 (broadcastInDim S4x1x16 ![0, 2] bcast_S4x16_S4x1x16_0_2 : (⟨S4x16, .f32⟩ : BufTy).Contents (Elt F) → (⟨S4x1x16, .f32⟩ : BufTy).Contents (Elt F)),
    unary main_v2398 main_v2399 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2395 main_v2399 main_v2400 (mulf : (⟨S4x256x16, .f32⟩ : BufTy).Contents (Elt F) → (⟨S4x256x16, .f32⟩ : BufTy).Contents (Elt F) → (⟨S4x256x16, .f32⟩ : BufTy).Contents (Elt F)),
    nullary main_cst_238 (constant S_ .f32 0x00000000#32),
    binary main_v2400 main_cst_238 main_v2401 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_239 (constantI S_ 32 119#32),
    unary main_c_239 main_v2402 (broadcastInDim S1 ![] bcast_S_S1 : (⟨S_, .i32⟩ : BufTy).Contents (Elt F) → (⟨S1, .i32⟩ : BufTy).Contents (Elt F)),
    ternary main_v2383 main_v2402 main_v2401 main_v2403 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps119_ok : (stepOps119 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step119_val (V : Valuation τ sig (Elt Ideal)) :
    after (stepOps119 (F := Ideal)) V (no_index (Proc.devRef .tc main_v2395)) = stepH 119 (by decide) (V (Proc.devRef .tc main_arg0)) (V (Proc.devRef .tc main_v3)) (V (Proc.devRef .tc main_arg2)) (V (Proc.devRef .tc main_v2375))
    ∧ after (stepOps119 (F := Ideal)) V (no_index (Proc.devRef .tc main_v2403)) = stepY 119 (by decide) (V (Proc.devRef .tc main_arg3)) (stepH 119 (by decide) (V (Proc.devRef .tc main_arg0)) (V (Proc.devRef .tc main_v3)) (V (Proc.devRef .tc main_arg2)) (V (Proc.devRef .tc main_v2375))) (V (Proc.devRef .tc main_v2383)) := by
  simp only [stepOps119]
  after_results_simp
  first | exact ⟨rfl, rfl⟩ | fail "value"
/-- Step 120 of the loop: operations 2647 … 2668 of the program. -/
abbrev stepOps120 : List (HloOp τ sig (Elt F)) :=
  [ unary main_v3 main_v2404 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2395 main_v2404 main_v2405 (mulf : (⟨S4x256x16, .f32⟩ : BufTy).Contents (Elt F) → (⟨S4x256x16, .f32⟩ : BufTy).Contents (Elt F) → (⟨S4x256x16, .f32⟩ : BufTy).Contents (Elt F)),
    unary main_arg0 main_v2406 ((extractStridedSlice S4x1x256 ![0, 120, 0] · slices_S4x512x256_S4x1x256_0_120_0) : (⟨S4x512x256, .f32⟩ : BufTy).Contents (Elt F) → (⟨S4x1x256, .f32⟩ : BufTy).Contents (Elt F)),
    reshape main_v2406 main_v2407 rfl shapeCasts_S4x1x256_S4x256,
    unary main_v2407 main_v2408 (broadcastInDim S4x256x1 ![0, 1] bcast_S4x256_S4x256x1_0_1 : (⟨S4x256, .f32⟩ : BufTy).Contents (Elt F) → (⟨S4x256x1, .f32⟩ : BufTy).Contents (Elt F)),
    unary main_arg2 main_v2409 ((extractStridedSlice S4x1x16 ![0, 120, 0] · slices_S4x512x16_S4x1x16_0_120_0) : (⟨S4x512x16, .f32⟩ : BufTy).Contents (Elt F) → (⟨S4x1x16, .f32⟩ : BufTy).Contents (Elt F)),
    reshape main_v2409 main_v2410 rfl shapeCasts_S4x1x16_S4x16,
    unary main_v2410 main_v2411 (broadcastInDim S4x1x16 ![0, 2] bcast_S4x16_S4x1x16_0_2 : (⟨S4x16, .f32⟩ : BufTy).Contents (Elt F) → (⟨S4x1x16, .f32⟩ : BufTy).Contents (Elt F)),
    unary main_v2408 main_v2412 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2411 main_v2413 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2412 main_v2413 main_v2414 (mulf : (⟨S4x256x16, .f32⟩ : BufTy).Contents (Elt F) → (⟨S4x256x16, .f32⟩ : BufTy).Contents (Elt F) → (⟨S4x256x16, .f32⟩ : BufTy).Contents (Elt F)),
    binary main_v2405 main_v2414 main_v2415 (addf : (⟨S4x256x16, .f32⟩ : BufTy).Contents (Elt F) → (⟨S4x256x16, .f32⟩ : BufTy).Contents (Elt F) → (⟨S4x256x16, .f32⟩ : BufTy).Contents (Elt F)),
    unary main_arg3 main_v2416 ((extractStridedSlice S4x1x16 ![0, 120, 0] · slices_S4x512x16_S4x1x16_0_120_0) : (⟨S4x512x16, .f32⟩ : BufTy).Contents (Elt F) → (⟨S4x1x16, .f32⟩ : BufTy).Contents (Elt F)),
    reshape main_v2416 main_v2417 rfl shapeCasts_S4x1x16_S4x16,
    unary main_v2417 main_v2418 (broadcastInDim S4x1x16 ![0, 2] bcast_S4x16_S4x1x16_0_2 : (⟨S4x16, .f32⟩ : BufTy).Contents (Elt F) → (⟨S4x1x16, .f32⟩ : BufTy).Contents (Elt F)),
    unary main_v2418 main_v2419 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2415 main_v2419 main_v2420 (mulf : (⟨S4x256x16, .f32⟩ : BufTy).Contents (Elt F) → (⟨S4x256x16, .f32⟩ : BufTy).Contents (Elt F) → (⟨S4x256x16, .f32⟩ : BufTy).Contents (Elt F)),
    nullary main_cst_240 (constant S_ .f32 0x00000000#32),
    binary main_v2420 main_cst_240 main_v2421 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_241 (constantI S_ 32 120#32),
    unary main_c_241 main_v2422 (broadcastInDim S1 ![] bcast_S_S1 : (⟨S_, .i32⟩ : BufTy).Contents (Elt F) → (⟨S1, .i32⟩ : BufTy).Contents (Elt F)),
    ternary main_v2403 main_v2422 main_v2421 main_v2423 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps120_ok : (stepOps120 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step120_val (V : Valuation τ sig (Elt Ideal)) :
    after (stepOps120 (F := Ideal)) V (no_index (Proc.devRef .tc main_v2415)) = stepH 120 (by decide) (V (Proc.devRef .tc main_arg0)) (V (Proc.devRef .tc main_v3)) (V (Proc.devRef .tc main_arg2)) (V (Proc.devRef .tc main_v2395))
    ∧ after (stepOps120 (F := Ideal)) V (no_index (Proc.devRef .tc main_v2423)) = stepY 120 (by decide) (V (Proc.devRef .tc main_arg3)) (stepH 120 (by decide) (V (Proc.devRef .tc main_arg0)) (V (Proc.devRef .tc main_v3)) (V (Proc.devRef .tc main_arg2)) (V (Proc.devRef .tc main_v2395))) (V (Proc.devRef .tc main_v2403)) := by
  simp only [stepOps120]
  after_results_simp
  first | exact ⟨rfl, rfl⟩ | fail "value"
/-- Step 121 of the loop: operations 2669 … 2690 of the program. -/
abbrev stepOps121 : List (HloOp τ sig (Elt F)) :=
  [ unary main_v3 main_v2424 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2415 main_v2424 main_v2425 (mulf : (⟨S4x256x16, .f32⟩ : BufTy).Contents (Elt F) → (⟨S4x256x16, .f32⟩ : BufTy).Contents (Elt F) → (⟨S4x256x16, .f32⟩ : BufTy).Contents (Elt F)),
    unary main_arg0 main_v2426 ((extractStridedSlice S4x1x256 ![0, 121, 0] · slices_S4x512x256_S4x1x256_0_121_0) : (⟨S4x512x256, .f32⟩ : BufTy).Contents (Elt F) → (⟨S4x1x256, .f32⟩ : BufTy).Contents (Elt F)),
    reshape main_v2426 main_v2427 rfl shapeCasts_S4x1x256_S4x256,
    unary main_v2427 main_v2428 (broadcastInDim S4x256x1 ![0, 1] bcast_S4x256_S4x256x1_0_1 : (⟨S4x256, .f32⟩ : BufTy).Contents (Elt F) → (⟨S4x256x1, .f32⟩ : BufTy).Contents (Elt F)),
    unary main_arg2 main_v2429 ((extractStridedSlice S4x1x16 ![0, 121, 0] · slices_S4x512x16_S4x1x16_0_121_0) : (⟨S4x512x16, .f32⟩ : BufTy).Contents (Elt F) → (⟨S4x1x16, .f32⟩ : BufTy).Contents (Elt F)),
    reshape main_v2429 main_v2430 rfl shapeCasts_S4x1x16_S4x16,
    unary main_v2430 main_v2431 (broadcastInDim S4x1x16 ![0, 2] bcast_S4x16_S4x1x16_0_2 : (⟨S4x16, .f32⟩ : BufTy).Contents (Elt F) → (⟨S4x1x16, .f32⟩ : BufTy).Contents (Elt F)),
    unary main_v2428 main_v2432 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2431 main_v2433 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2432 main_v2433 main_v2434 (mulf : (⟨S4x256x16, .f32⟩ : BufTy).Contents (Elt F) → (⟨S4x256x16, .f32⟩ : BufTy).Contents (Elt F) → (⟨S4x256x16, .f32⟩ : BufTy).Contents (Elt F)),
    binary main_v2425 main_v2434 main_v2435 (addf : (⟨S4x256x16, .f32⟩ : BufTy).Contents (Elt F) → (⟨S4x256x16, .f32⟩ : BufTy).Contents (Elt F) → (⟨S4x256x16, .f32⟩ : BufTy).Contents (Elt F)),
    unary main_arg3 main_v2436 ((extractStridedSlice S4x1x16 ![0, 121, 0] · slices_S4x512x16_S4x1x16_0_121_0) : (⟨S4x512x16, .f32⟩ : BufTy).Contents (Elt F) → (⟨S4x1x16, .f32⟩ : BufTy).Contents (Elt F)),
    reshape main_v2436 main_v2437 rfl shapeCasts_S4x1x16_S4x16,
    unary main_v2437 main_v2438 (broadcastInDim S4x1x16 ![0, 2] bcast_S4x16_S4x1x16_0_2 : (⟨S4x16, .f32⟩ : BufTy).Contents (Elt F) → (⟨S4x1x16, .f32⟩ : BufTy).Contents (Elt F)),
    unary main_v2438 main_v2439 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2435 main_v2439 main_v2440 (mulf : (⟨S4x256x16, .f32⟩ : BufTy).Contents (Elt F) → (⟨S4x256x16, .f32⟩ : BufTy).Contents (Elt F) → (⟨S4x256x16, .f32⟩ : BufTy).Contents (Elt F)),
    nullary main_cst_242 (constant S_ .f32 0x00000000#32),
    binary main_v2440 main_cst_242 main_v2441 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_243 (constantI S_ 32 121#32),
    unary main_c_243 main_v2442 (broadcastInDim S1 ![] bcast_S_S1 : (⟨S_, .i32⟩ : BufTy).Contents (Elt F) → (⟨S1, .i32⟩ : BufTy).Contents (Elt F)),
    ternary main_v2423 main_v2442 main_v2441 main_v2443 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps121_ok : (stepOps121 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step121_val (V : Valuation τ sig (Elt Ideal)) :
    after (stepOps121 (F := Ideal)) V (no_index (Proc.devRef .tc main_v2435)) = stepH 121 (by decide) (V (Proc.devRef .tc main_arg0)) (V (Proc.devRef .tc main_v3)) (V (Proc.devRef .tc main_arg2)) (V (Proc.devRef .tc main_v2415))
    ∧ after (stepOps121 (F := Ideal)) V (no_index (Proc.devRef .tc main_v2443)) = stepY 121 (by decide) (V (Proc.devRef .tc main_arg3)) (stepH 121 (by decide) (V (Proc.devRef .tc main_arg0)) (V (Proc.devRef .tc main_v3)) (V (Proc.devRef .tc main_arg2)) (V (Proc.devRef .tc main_v2415))) (V (Proc.devRef .tc main_v2423)) := by
  simp only [stepOps121]
  after_results_simp
  first | exact ⟨rfl, rfl⟩ | fail "value"
/-- Step 122 of the loop: operations 2691 … 2712 of the program. -/
abbrev stepOps122 : List (HloOp τ sig (Elt F)) :=
  [ unary main_v3 main_v2444 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2435 main_v2444 main_v2445 (mulf : (⟨S4x256x16, .f32⟩ : BufTy).Contents (Elt F) → (⟨S4x256x16, .f32⟩ : BufTy).Contents (Elt F) → (⟨S4x256x16, .f32⟩ : BufTy).Contents (Elt F)),
    unary main_arg0 main_v2446 ((extractStridedSlice S4x1x256 ![0, 122, 0] · slices_S4x512x256_S4x1x256_0_122_0) : (⟨S4x512x256, .f32⟩ : BufTy).Contents (Elt F) → (⟨S4x1x256, .f32⟩ : BufTy).Contents (Elt F)),
    reshape main_v2446 main_v2447 rfl shapeCasts_S4x1x256_S4x256,
    unary main_v2447 main_v2448 (broadcastInDim S4x256x1 ![0, 1] bcast_S4x256_S4x256x1_0_1 : (⟨S4x256, .f32⟩ : BufTy).Contents (Elt F) → (⟨S4x256x1, .f32⟩ : BufTy).Contents (Elt F)),
    unary main_arg2 main_v2449 ((extractStridedSlice S4x1x16 ![0, 122, 0] · slices_S4x512x16_S4x1x16_0_122_0) : (⟨S4x512x16, .f32⟩ : BufTy).Contents (Elt F) → (⟨S4x1x16, .f32⟩ : BufTy).Contents (Elt F)),
    reshape main_v2449 main_v2450 rfl shapeCasts_S4x1x16_S4x16,
    unary main_v2450 main_v2451 (broadcastInDim S4x1x16 ![0, 2] bcast_S4x16_S4x1x16_0_2 : (⟨S4x16, .f32⟩ : BufTy).Contents (Elt F) → (⟨S4x1x16, .f32⟩ : BufTy).Contents (Elt F)),
    unary main_v2448 main_v2452 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2451 main_v2453 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2452 main_v2453 main_v2454 (mulf : (⟨S4x256x16, .f32⟩ : BufTy).Contents (Elt F) → (⟨S4x256x16, .f32⟩ : BufTy).Contents (Elt F) → (⟨S4x256x16, .f32⟩ : BufTy).Contents (Elt F)),
    binary main_v2445 main_v2454 main_v2455 (addf : (⟨S4x256x16, .f32⟩ : BufTy).Contents (Elt F) → (⟨S4x256x16, .f32⟩ : BufTy).Contents (Elt F) → (⟨S4x256x16, .f32⟩ : BufTy).Contents (Elt F)),
    unary main_arg3 main_v2456 ((extractStridedSlice S4x1x16 ![0, 122, 0] · slices_S4x512x16_S4x1x16_0_122_0) : (⟨S4x512x16, .f32⟩ : BufTy).Contents (Elt F) → (⟨S4x1x16, .f32⟩ : BufTy).Contents (Elt F)),
    reshape main_v2456 main_v2457 rfl shapeCasts_S4x1x16_S4x16,
    unary main_v2457 main_v2458 (broadcastInDim S4x1x16 ![0, 2] bcast_S4x16_S4x1x16_0_2 : (⟨S4x16, .f32⟩ : BufTy).Contents (Elt F) → (⟨S4x1x16, .f32⟩ : BufTy).Contents (Elt F)),
    unary main_v2458 main_v2459 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2455 main_v2459 main_v2460 (mulf : (⟨S4x256x16, .f32⟩ : BufTy).Contents (Elt F) → (⟨S4x256x16, .f32⟩ : BufTy).Contents (Elt F) → (⟨S4x256x16, .f32⟩ : BufTy).Contents (Elt F)),
    nullary main_cst_244 (constant S_ .f32 0x00000000#32),
    binary main_v2460 main_cst_244 main_v2461 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_245 (constantI S_ 32 122#32),
    unary main_c_245 main_v2462 (broadcastInDim S1 ![] bcast_S_S1 : (⟨S_, .i32⟩ : BufTy).Contents (Elt F) → (⟨S1, .i32⟩ : BufTy).Contents (Elt F)),
    ternary main_v2443 main_v2462 main_v2461 main_v2463 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps122_ok : (stepOps122 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step122_val (V : Valuation τ sig (Elt Ideal)) :
    after (stepOps122 (F := Ideal)) V (no_index (Proc.devRef .tc main_v2455)) = stepH 122 (by decide) (V (Proc.devRef .tc main_arg0)) (V (Proc.devRef .tc main_v3)) (V (Proc.devRef .tc main_arg2)) (V (Proc.devRef .tc main_v2435))
    ∧ after (stepOps122 (F := Ideal)) V (no_index (Proc.devRef .tc main_v2463)) = stepY 122 (by decide) (V (Proc.devRef .tc main_arg3)) (stepH 122 (by decide) (V (Proc.devRef .tc main_arg0)) (V (Proc.devRef .tc main_v3)) (V (Proc.devRef .tc main_arg2)) (V (Proc.devRef .tc main_v2435))) (V (Proc.devRef .tc main_v2443)) := by
  simp only [stepOps122]
  after_results_simp
  first | exact ⟨rfl, rfl⟩ | fail "value"
/-- Step 123 of the loop: operations 2713 … 2734 of the program. -/
abbrev stepOps123 : List (HloOp τ sig (Elt F)) :=
  [ unary main_v3 main_v2464 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2455 main_v2464 main_v2465 (mulf : (⟨S4x256x16, .f32⟩ : BufTy).Contents (Elt F) → (⟨S4x256x16, .f32⟩ : BufTy).Contents (Elt F) → (⟨S4x256x16, .f32⟩ : BufTy).Contents (Elt F)),
    unary main_arg0 main_v2466 ((extractStridedSlice S4x1x256 ![0, 123, 0] · slices_S4x512x256_S4x1x256_0_123_0) : (⟨S4x512x256, .f32⟩ : BufTy).Contents (Elt F) → (⟨S4x1x256, .f32⟩ : BufTy).Contents (Elt F)),
    reshape main_v2466 main_v2467 rfl shapeCasts_S4x1x256_S4x256,
    unary main_v2467 main_v2468 (broadcastInDim S4x256x1 ![0, 1] bcast_S4x256_S4x256x1_0_1 : (⟨S4x256, .f32⟩ : BufTy).Contents (Elt F) → (⟨S4x256x1, .f32⟩ : BufTy).Contents (Elt F)),
    unary main_arg2 main_v2469 ((extractStridedSlice S4x1x16 ![0, 123, 0] · slices_S4x512x16_S4x1x16_0_123_0) : (⟨S4x512x16, .f32⟩ : BufTy).Contents (Elt F) → (⟨S4x1x16, .f32⟩ : BufTy).Contents (Elt F)),
    reshape main_v2469 main_v2470 rfl shapeCasts_S4x1x16_S4x16,
    unary main_v2470 main_v2471 (broadcastInDim S4x1x16 ![0, 2] bcast_S4x16_S4x1x16_0_2 : (⟨S4x16, .f32⟩ : BufTy).Contents (Elt F) → (⟨S4x1x16, .f32⟩ : BufTy).Contents (Elt F)),
    unary main_v2468 main_v2472 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2471 main_v2473 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2472 main_v2473 main_v2474 (mulf : (⟨S4x256x16, .f32⟩ : BufTy).Contents (Elt F) → (⟨S4x256x16, .f32⟩ : BufTy).Contents (Elt F) → (⟨S4x256x16, .f32⟩ : BufTy).Contents (Elt F)),
    binary main_v2465 main_v2474 main_v2475 (addf : (⟨S4x256x16, .f32⟩ : BufTy).Contents (Elt F) → (⟨S4x256x16, .f32⟩ : BufTy).Contents (Elt F) → (⟨S4x256x16, .f32⟩ : BufTy).Contents (Elt F)),
    unary main_arg3 main_v2476 ((extractStridedSlice S4x1x16 ![0, 123, 0] · slices_S4x512x16_S4x1x16_0_123_0) : (⟨S4x512x16, .f32⟩ : BufTy).Contents (Elt F) → (⟨S4x1x16, .f32⟩ : BufTy).Contents (Elt F)),
    reshape main_v2476 main_v2477 rfl shapeCasts_S4x1x16_S4x16,
    unary main_v2477 main_v2478 (broadcastInDim S4x1x16 ![0, 2] bcast_S4x16_S4x1x16_0_2 : (⟨S4x16, .f32⟩ : BufTy).Contents (Elt F) → (⟨S4x1x16, .f32⟩ : BufTy).Contents (Elt F)),
    unary main_v2478 main_v2479 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2475 main_v2479 main_v2480 (mulf : (⟨S4x256x16, .f32⟩ : BufTy).Contents (Elt F) → (⟨S4x256x16, .f32⟩ : BufTy).Contents (Elt F) → (⟨S4x256x16, .f32⟩ : BufTy).Contents (Elt F)),
    nullary main_cst_246 (constant S_ .f32 0x00000000#32),
    binary main_v2480 main_cst_246 main_v2481 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_247 (constantI S_ 32 123#32),
    unary main_c_247 main_v2482 (broadcastInDim S1 ![] bcast_S_S1 : (⟨S_, .i32⟩ : BufTy).Contents (Elt F) → (⟨S1, .i32⟩ : BufTy).Contents (Elt F)),
    ternary main_v2463 main_v2482 main_v2481 main_v2483 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps123_ok : (stepOps123 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step123_val (V : Valuation τ sig (Elt Ideal)) :
    after (stepOps123 (F := Ideal)) V (no_index (Proc.devRef .tc main_v2475)) = stepH 123 (by decide) (V (Proc.devRef .tc main_arg0)) (V (Proc.devRef .tc main_v3)) (V (Proc.devRef .tc main_arg2)) (V (Proc.devRef .tc main_v2455))
    ∧ after (stepOps123 (F := Ideal)) V (no_index (Proc.devRef .tc main_v2483)) = stepY 123 (by decide) (V (Proc.devRef .tc main_arg3)) (stepH 123 (by decide) (V (Proc.devRef .tc main_arg0)) (V (Proc.devRef .tc main_v3)) (V (Proc.devRef .tc main_arg2)) (V (Proc.devRef .tc main_v2455))) (V (Proc.devRef .tc main_v2463)) := by
  simp only [stepOps123]
  after_results_simp
  first | exact ⟨rfl, rfl⟩ | fail "value"
/-- Step 124 of the loop: operations 2735 … 2756 of the program. -/
abbrev stepOps124 : List (HloOp τ sig (Elt F)) :=
  [ unary main_v3 main_v2484 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2475 main_v2484 main_v2485 (mulf : (⟨S4x256x16, .f32⟩ : BufTy).Contents (Elt F) → (⟨S4x256x16, .f32⟩ : BufTy).Contents (Elt F) → (⟨S4x256x16, .f32⟩ : BufTy).Contents (Elt F)),
    unary main_arg0 main_v2486 ((extractStridedSlice S4x1x256 ![0, 124, 0] · slices_S4x512x256_S4x1x256_0_124_0) : (⟨S4x512x256, .f32⟩ : BufTy).Contents (Elt F) → (⟨S4x1x256, .f32⟩ : BufTy).Contents (Elt F)),
    reshape main_v2486 main_v2487 rfl shapeCasts_S4x1x256_S4x256,
    unary main_v2487 main_v2488 (broadcastInDim S4x256x1 ![0, 1] bcast_S4x256_S4x256x1_0_1 : (⟨S4x256, .f32⟩ : BufTy).Contents (Elt F) → (⟨S4x256x1, .f32⟩ : BufTy).Contents (Elt F)),
    unary main_arg2 main_v2489 ((extractStridedSlice S4x1x16 ![0, 124, 0] · slices_S4x512x16_S4x1x16_0_124_0) : (⟨S4x512x16, .f32⟩ : BufTy).Contents (Elt F) → (⟨S4x1x16, .f32⟩ : BufTy).Contents (Elt F)),
    reshape main_v2489 main_v2490 rfl shapeCasts_S4x1x16_S4x16,
    unary main_v2490 main_v2491 (broadcastInDim S4x1x16 ![0, 2] bcast_S4x16_S4x1x16_0_2 : (⟨S4x16, .f32⟩ : BufTy).Contents (Elt F) → (⟨S4x1x16, .f32⟩ : BufTy).Contents (Elt F)),
    unary main_v2488 main_v2492 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2491 main_v2493 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2492 main_v2493 main_v2494 (mulf : (⟨S4x256x16, .f32⟩ : BufTy).Contents (Elt F) → (⟨S4x256x16, .f32⟩ : BufTy).Contents (Elt F) → (⟨S4x256x16, .f32⟩ : BufTy).Contents (Elt F)),
    binary main_v2485 main_v2494 main_v2495 (addf : (⟨S4x256x16, .f32⟩ : BufTy).Contents (Elt F) → (⟨S4x256x16, .f32⟩ : BufTy).Contents (Elt F) → (⟨S4x256x16, .f32⟩ : BufTy).Contents (Elt F)),
    unary main_arg3 main_v2496 ((extractStridedSlice S4x1x16 ![0, 124, 0] · slices_S4x512x16_S4x1x16_0_124_0) : (⟨S4x512x16, .f32⟩ : BufTy).Contents (Elt F) → (⟨S4x1x16, .f32⟩ : BufTy).Contents (Elt F)),
    reshape main_v2496 main_v2497 rfl shapeCasts_S4x1x16_S4x16,
    unary main_v2497 main_v2498 (broadcastInDim S4x1x16 ![0, 2] bcast_S4x16_S4x1x16_0_2 : (⟨S4x16, .f32⟩ : BufTy).Contents (Elt F) → (⟨S4x1x16, .f32⟩ : BufTy).Contents (Elt F)),
    unary main_v2498 main_v2499 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2495 main_v2499 main_v2500 (mulf : (⟨S4x256x16, .f32⟩ : BufTy).Contents (Elt F) → (⟨S4x256x16, .f32⟩ : BufTy).Contents (Elt F) → (⟨S4x256x16, .f32⟩ : BufTy).Contents (Elt F)),
    nullary main_cst_248 (constant S_ .f32 0x00000000#32),
    binary main_v2500 main_cst_248 main_v2501 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_249 (constantI S_ 32 124#32),
    unary main_c_249 main_v2502 (broadcastInDim S1 ![] bcast_S_S1 : (⟨S_, .i32⟩ : BufTy).Contents (Elt F) → (⟨S1, .i32⟩ : BufTy).Contents (Elt F)),
    ternary main_v2483 main_v2502 main_v2501 main_v2503 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps124_ok : (stepOps124 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step124_val (V : Valuation τ sig (Elt Ideal)) :
    after (stepOps124 (F := Ideal)) V (no_index (Proc.devRef .tc main_v2495)) = stepH 124 (by decide) (V (Proc.devRef .tc main_arg0)) (V (Proc.devRef .tc main_v3)) (V (Proc.devRef .tc main_arg2)) (V (Proc.devRef .tc main_v2475))
    ∧ after (stepOps124 (F := Ideal)) V (no_index (Proc.devRef .tc main_v2503)) = stepY 124 (by decide) (V (Proc.devRef .tc main_arg3)) (stepH 124 (by decide) (V (Proc.devRef .tc main_arg0)) (V (Proc.devRef .tc main_v3)) (V (Proc.devRef .tc main_arg2)) (V (Proc.devRef .tc main_v2475))) (V (Proc.devRef .tc main_v2483)) := by
  simp only [stepOps124]
  after_results_simp
  first | exact ⟨rfl, rfl⟩ | fail "value"
/-- Step 125 of the loop: operations 2757 … 2778 of the program. -/
abbrev stepOps125 : List (HloOp τ sig (Elt F)) :=
  [ unary main_v3 main_v2504 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2495 main_v2504 main_v2505 (mulf : (⟨S4x256x16, .f32⟩ : BufTy).Contents (Elt F) → (⟨S4x256x16, .f32⟩ : BufTy).Contents (Elt F) → (⟨S4x256x16, .f32⟩ : BufTy).Contents (Elt F)),
    unary main_arg0 main_v2506 ((extractStridedSlice S4x1x256 ![0, 125, 0] · slices_S4x512x256_S4x1x256_0_125_0) : (⟨S4x512x256, .f32⟩ : BufTy).Contents (Elt F) → (⟨S4x1x256, .f32⟩ : BufTy).Contents (Elt F)),
    reshape main_v2506 main_v2507 rfl shapeCasts_S4x1x256_S4x256,
    unary main_v2507 main_v2508 (broadcastInDim S4x256x1 ![0, 1] bcast_S4x256_S4x256x1_0_1 : (⟨S4x256, .f32⟩ : BufTy).Contents (Elt F) → (⟨S4x256x1, .f32⟩ : BufTy).Contents (Elt F)),
    unary main_arg2 main_v2509 ((extractStridedSlice S4x1x16 ![0, 125, 0] · slices_S4x512x16_S4x1x16_0_125_0) : (⟨S4x512x16, .f32⟩ : BufTy).Contents (Elt F) → (⟨S4x1x16, .f32⟩ : BufTy).Contents (Elt F)),
    reshape main_v2509 main_v2510 rfl shapeCasts_S4x1x16_S4x16,
    unary main_v2510 main_v2511 (broadcastInDim S4x1x16 ![0, 2] bcast_S4x16_S4x1x16_0_2 : (⟨S4x16, .f32⟩ : BufTy).Contents (Elt F) → (⟨S4x1x16, .f32⟩ : BufTy).Contents (Elt F)),
    unary main_v2508 main_v2512 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2511 main_v2513 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2512 main_v2513 main_v2514 (mulf : (⟨S4x256x16, .f32⟩ : BufTy).Contents (Elt F) → (⟨S4x256x16, .f32⟩ : BufTy).Contents (Elt F) → (⟨S4x256x16, .f32⟩ : BufTy).Contents (Elt F)),
    binary main_v2505 main_v2514 main_v2515 (addf : (⟨S4x256x16, .f32⟩ : BufTy).Contents (Elt F) → (⟨S4x256x16, .f32⟩ : BufTy).Contents (Elt F) → (⟨S4x256x16, .f32⟩ : BufTy).Contents (Elt F)),
    unary main_arg3 main_v2516 ((extractStridedSlice S4x1x16 ![0, 125, 0] · slices_S4x512x16_S4x1x16_0_125_0) : (⟨S4x512x16, .f32⟩ : BufTy).Contents (Elt F) → (⟨S4x1x16, .f32⟩ : BufTy).Contents (Elt F)),
    reshape main_v2516 main_v2517 rfl shapeCasts_S4x1x16_S4x16,
    unary main_v2517 main_v2518 (broadcastInDim S4x1x16 ![0, 2] bcast_S4x16_S4x1x16_0_2 : (⟨S4x16, .f32⟩ : BufTy).Contents (Elt F) → (⟨S4x1x16, .f32⟩ : BufTy).Contents (Elt F)),
    unary main_v2518 main_v2519 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2515 main_v2519 main_v2520 (mulf : (⟨S4x256x16, .f32⟩ : BufTy).Contents (Elt F) → (⟨S4x256x16, .f32⟩ : BufTy).Contents (Elt F) → (⟨S4x256x16, .f32⟩ : BufTy).Contents (Elt F)),
    nullary main_cst_250 (constant S_ .f32 0x00000000#32),
    binary main_v2520 main_cst_250 main_v2521 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_251 (constantI S_ 32 125#32),
    unary main_c_251 main_v2522 (broadcastInDim S1 ![] bcast_S_S1 : (⟨S_, .i32⟩ : BufTy).Contents (Elt F) → (⟨S1, .i32⟩ : BufTy).Contents (Elt F)),
    ternary main_v2503 main_v2522 main_v2521 main_v2523 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps125_ok : (stepOps125 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step125_val (V : Valuation τ sig (Elt Ideal)) :
    after (stepOps125 (F := Ideal)) V (no_index (Proc.devRef .tc main_v2515)) = stepH 125 (by decide) (V (Proc.devRef .tc main_arg0)) (V (Proc.devRef .tc main_v3)) (V (Proc.devRef .tc main_arg2)) (V (Proc.devRef .tc main_v2495))
    ∧ after (stepOps125 (F := Ideal)) V (no_index (Proc.devRef .tc main_v2523)) = stepY 125 (by decide) (V (Proc.devRef .tc main_arg3)) (stepH 125 (by decide) (V (Proc.devRef .tc main_arg0)) (V (Proc.devRef .tc main_v3)) (V (Proc.devRef .tc main_arg2)) (V (Proc.devRef .tc main_v2495))) (V (Proc.devRef .tc main_v2503)) := by
  simp only [stepOps125]
  after_results_simp
  first | exact ⟨rfl, rfl⟩ | fail "value"
/-- Step 126 of the loop: operations 2779 … 2800 of the program. -/
abbrev stepOps126 : List (HloOp τ sig (Elt F)) :=
  [ unary main_v3 main_v2524 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2515 main_v2524 main_v2525 (mulf : (⟨S4x256x16, .f32⟩ : BufTy).Contents (Elt F) → (⟨S4x256x16, .f32⟩ : BufTy).Contents (Elt F) → (⟨S4x256x16, .f32⟩ : BufTy).Contents (Elt F)),
    unary main_arg0 main_v2526 ((extractStridedSlice S4x1x256 ![0, 126, 0] · slices_S4x512x256_S4x1x256_0_126_0) : (⟨S4x512x256, .f32⟩ : BufTy).Contents (Elt F) → (⟨S4x1x256, .f32⟩ : BufTy).Contents (Elt F)),
    reshape main_v2526 main_v2527 rfl shapeCasts_S4x1x256_S4x256,
    unary main_v2527 main_v2528 (broadcastInDim S4x256x1 ![0, 1] bcast_S4x256_S4x256x1_0_1 : (⟨S4x256, .f32⟩ : BufTy).Contents (Elt F) → (⟨S4x256x1, .f32⟩ : BufTy).Contents (Elt F)),
    unary main_arg2 main_v2529 ((extractStridedSlice S4x1x16 ![0, 126, 0] · slices_S4x512x16_S4x1x16_0_126_0) : (⟨S4x512x16, .f32⟩ : BufTy).Contents (Elt F) → (⟨S4x1x16, .f32⟩ : BufTy).Contents (Elt F)),
    reshape main_v2529 main_v2530 rfl shapeCasts_S4x1x16_S4x16,
    unary main_v2530 main_v2531 (broadcastInDim S4x1x16 ![0, 2] bcast_S4x16_S4x1x16_0_2 : (⟨S4x16, .f32⟩ : BufTy).Contents (Elt F) → (⟨S4x1x16, .f32⟩ : BufTy).Contents (Elt F)),
    unary main_v2528 main_v2532 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2531 main_v2533 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2532 main_v2533 main_v2534 (mulf : (⟨S4x256x16, .f32⟩ : BufTy).Contents (Elt F) → (⟨S4x256x16, .f32⟩ : BufTy).Contents (Elt F) → (⟨S4x256x16, .f32⟩ : BufTy).Contents (Elt F)),
    binary main_v2525 main_v2534 main_v2535 (addf : (⟨S4x256x16, .f32⟩ : BufTy).Contents (Elt F) → (⟨S4x256x16, .f32⟩ : BufTy).Contents (Elt F) → (⟨S4x256x16, .f32⟩ : BufTy).Contents (Elt F)),
    unary main_arg3 main_v2536 ((extractStridedSlice S4x1x16 ![0, 126, 0] · slices_S4x512x16_S4x1x16_0_126_0) : (⟨S4x512x16, .f32⟩ : BufTy).Contents (Elt F) → (⟨S4x1x16, .f32⟩ : BufTy).Contents (Elt F)),
    reshape main_v2536 main_v2537 rfl shapeCasts_S4x1x16_S4x16,
    unary main_v2537 main_v2538 (broadcastInDim S4x1x16 ![0, 2] bcast_S4x16_S4x1x16_0_2 : (⟨S4x16, .f32⟩ : BufTy).Contents (Elt F) → (⟨S4x1x16, .f32⟩ : BufTy).Contents (Elt F)),
    unary main_v2538 main_v2539 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2535 main_v2539 main_v2540 (mulf : (⟨S4x256x16, .f32⟩ : BufTy).Contents (Elt F) → (⟨S4x256x16, .f32⟩ : BufTy).Contents (Elt F) → (⟨S4x256x16, .f32⟩ : BufTy).Contents (Elt F)),
    nullary main_cst_252 (constant S_ .f32 0x00000000#32),
    binary main_v2540 main_cst_252 main_v2541 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_253 (constantI S_ 32 126#32),
    unary main_c_253 main_v2542 (broadcastInDim S1 ![] bcast_S_S1 : (⟨S_, .i32⟩ : BufTy).Contents (Elt F) → (⟨S1, .i32⟩ : BufTy).Contents (Elt F)),
    ternary main_v2523 main_v2542 main_v2541 main_v2543 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps126_ok : (stepOps126 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step126_val (V : Valuation τ sig (Elt Ideal)) :
    after (stepOps126 (F := Ideal)) V (no_index (Proc.devRef .tc main_v2535)) = stepH 126 (by decide) (V (Proc.devRef .tc main_arg0)) (V (Proc.devRef .tc main_v3)) (V (Proc.devRef .tc main_arg2)) (V (Proc.devRef .tc main_v2515))
    ∧ after (stepOps126 (F := Ideal)) V (no_index (Proc.devRef .tc main_v2543)) = stepY 126 (by decide) (V (Proc.devRef .tc main_arg3)) (stepH 126 (by decide) (V (Proc.devRef .tc main_arg0)) (V (Proc.devRef .tc main_v3)) (V (Proc.devRef .tc main_arg2)) (V (Proc.devRef .tc main_v2515))) (V (Proc.devRef .tc main_v2523)) := by
  simp only [stepOps126]
  after_results_simp
  first | exact ⟨rfl, rfl⟩ | fail "value"
/-- Step 127 of the loop: operations 2801 … 2822 of the program. -/
abbrev stepOps127 : List (HloOp τ sig (Elt F)) :=
  [ unary main_v3 main_v2544 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2535 main_v2544 main_v2545 (mulf : (⟨S4x256x16, .f32⟩ : BufTy).Contents (Elt F) → (⟨S4x256x16, .f32⟩ : BufTy).Contents (Elt F) → (⟨S4x256x16, .f32⟩ : BufTy).Contents (Elt F)),
    unary main_arg0 main_v2546 ((extractStridedSlice S4x1x256 ![0, 127, 0] · slices_S4x512x256_S4x1x256_0_127_0) : (⟨S4x512x256, .f32⟩ : BufTy).Contents (Elt F) → (⟨S4x1x256, .f32⟩ : BufTy).Contents (Elt F)),
    reshape main_v2546 main_v2547 rfl shapeCasts_S4x1x256_S4x256,
    unary main_v2547 main_v2548 (broadcastInDim S4x256x1 ![0, 1] bcast_S4x256_S4x256x1_0_1 : (⟨S4x256, .f32⟩ : BufTy).Contents (Elt F) → (⟨S4x256x1, .f32⟩ : BufTy).Contents (Elt F)),
    unary main_arg2 main_v2549 ((extractStridedSlice S4x1x16 ![0, 127, 0] · slices_S4x512x16_S4x1x16_0_127_0) : (⟨S4x512x16, .f32⟩ : BufTy).Contents (Elt F) → (⟨S4x1x16, .f32⟩ : BufTy).Contents (Elt F)),
    reshape main_v2549 main_v2550 rfl shapeCasts_S4x1x16_S4x16,
    unary main_v2550 main_v2551 (broadcastInDim S4x1x16 ![0, 2] bcast_S4x16_S4x1x16_0_2 : (⟨S4x16, .f32⟩ : BufTy).Contents (Elt F) → (⟨S4x1x16, .f32⟩ : BufTy).Contents (Elt F)),
    unary main_v2548 main_v2552 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2551 main_v2553 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2552 main_v2553 main_v2554 (mulf : (⟨S4x256x16, .f32⟩ : BufTy).Contents (Elt F) → (⟨S4x256x16, .f32⟩ : BufTy).Contents (Elt F) → (⟨S4x256x16, .f32⟩ : BufTy).Contents (Elt F)),
    binary main_v2545 main_v2554 main_v2555 (addf : (⟨S4x256x16, .f32⟩ : BufTy).Contents (Elt F) → (⟨S4x256x16, .f32⟩ : BufTy).Contents (Elt F) → (⟨S4x256x16, .f32⟩ : BufTy).Contents (Elt F)),
    unary main_arg3 main_v2556 ((extractStridedSlice S4x1x16 ![0, 127, 0] · slices_S4x512x16_S4x1x16_0_127_0) : (⟨S4x512x16, .f32⟩ : BufTy).Contents (Elt F) → (⟨S4x1x16, .f32⟩ : BufTy).Contents (Elt F)),
    reshape main_v2556 main_v2557 rfl shapeCasts_S4x1x16_S4x16,
    unary main_v2557 main_v2558 (broadcastInDim S4x1x16 ![0, 2] bcast_S4x16_S4x1x16_0_2 : (⟨S4x16, .f32⟩ : BufTy).Contents (Elt F) → (⟨S4x1x16, .f32⟩ : BufTy).Contents (Elt F)),
    unary main_v2558 main_v2559 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2555 main_v2559 main_v2560 (mulf : (⟨S4x256x16, .f32⟩ : BufTy).Contents (Elt F) → (⟨S4x256x16, .f32⟩ : BufTy).Contents (Elt F) → (⟨S4x256x16, .f32⟩ : BufTy).Contents (Elt F)),
    nullary main_cst_254 (constant S_ .f32 0x00000000#32),
    binary main_v2560 main_cst_254 main_v2561 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_255 (constantI S_ 32 127#32),
    unary main_c_255 main_v2562 (broadcastInDim S1 ![] bcast_S_S1 : (⟨S_, .i32⟩ : BufTy).Contents (Elt F) → (⟨S1, .i32⟩ : BufTy).Contents (Elt F)),
    ternary main_v2543 main_v2562 main_v2561 main_v2563 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps127_ok : (stepOps127 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step127_val (V : Valuation τ sig (Elt Ideal)) :
    after (stepOps127 (F := Ideal)) V (no_index (Proc.devRef .tc main_v2555)) = stepH 127 (by decide) (V (Proc.devRef .tc main_arg0)) (V (Proc.devRef .tc main_v3)) (V (Proc.devRef .tc main_arg2)) (V (Proc.devRef .tc main_v2535))
    ∧ after (stepOps127 (F := Ideal)) V (no_index (Proc.devRef .tc main_v2563)) = stepY 127 (by decide) (V (Proc.devRef .tc main_arg3)) (stepH 127 (by decide) (V (Proc.devRef .tc main_arg0)) (V (Proc.devRef .tc main_v3)) (V (Proc.devRef .tc main_arg2)) (V (Proc.devRef .tc main_v2535))) (V (Proc.devRef .tc main_v2543)) := by
  simp only [stepOps127]
  after_results_simp
  first | exact ⟨rfl, rfl⟩ | fail "value"

end Cert.ReferenceIdeal.RefRun

end
-- ==== Proof.RefTableStep08.lean ====
/-
  Steps 128 … 143 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 128 of the loop: operations 2823 … 2844 of the program. -/
abbrev stepOps128 : List (HloOp τ sig (Elt F)) :=
  [ unary main_v3 main_v2564 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2555 main_v2564 main_v2565 (mulf : (⟨S4x256x16, .f32⟩ : BufTy).Contents (Elt F) → (⟨S4x256x16, .f32⟩ : BufTy).Contents (Elt F) → (⟨S4x256x16, .f32⟩ : BufTy).Contents (Elt F)),
    unary main_arg0 main_v2566 ((extractStridedSlice S4x1x256 ![0, 128, 0] · slices_S4x512x256_S4x1x256_0_128_0) : (⟨S4x512x256, .f32⟩ : BufTy).Contents (Elt F) → (⟨S4x1x256, .f32⟩ : BufTy).Contents (Elt F)),
    reshape main_v2566 main_v2567 rfl shapeCasts_S4x1x256_S4x256,
    unary main_v2567 main_v2568 (broadcastInDim S4x256x1 ![0, 1] bcast_S4x256_S4x256x1_0_1 : (⟨S4x256, .f32⟩ : BufTy).Contents (Elt F) → (⟨S4x256x1, .f32⟩ : BufTy).Contents (Elt F)),
    unary main_arg2 main_v2569 ((extractStridedSlice S4x1x16 ![0, 128, 0] · slices_S4x512x16_S4x1x16_0_128_0) : (⟨S4x512x16, .f32⟩ : BufTy).Contents (Elt F) → (⟨S4x1x16, .f32⟩ : BufTy).Contents (Elt F)),
    reshape main_v2569 main_v2570 rfl shapeCasts_S4x1x16_S4x16,
    unary main_v2570 main_v2571 (broadcastInDim S4x1x16 ![0, 2] bcast_S4x16_S4x1x16_0_2 : (⟨S4x16, .f32⟩ : BufTy).Contents (Elt F) → (⟨S4x1x16, .f32⟩ : BufTy).Contents (Elt F)),
    unary main_v2568 main_v2572 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2571 main_v2573 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2572 main_v2573 main_v2574 (mulf : (⟨S4x256x16, .f32⟩ : BufTy).Contents (Elt F) → (⟨S4x256x16, .f32⟩ : BufTy).Contents (Elt F) → (⟨S4x256x16, .f32⟩ : BufTy).Contents (Elt F)),
    binary main_v2565 main_v2574 main_v2575 (addf : (⟨S4x256x16, .f32⟩ : BufTy).Contents (Elt F) → (⟨S4x256x16, .f32⟩ : BufTy).Contents (Elt F) → (⟨S4x256x16, .f32⟩ : BufTy).Contents (Elt F)),
    unary main_arg3 main_v2576 ((extractStridedSlice S4x1x16 ![0, 128, 0] · slices_S4x512x16_S4x1x16_0_128_0) : (⟨S4x512x16, .f32⟩ : BufTy).Contents (Elt F) → (⟨S4x1x16, .f32⟩ : BufTy).Contents (Elt F)),
    reshape main_v2576 main_v2577 rfl shapeCasts_S4x1x16_S4x16,
    unary main_v2577 main_v2578 (broadcastInDim S4x1x16 ![0, 2] bcast_S4x16_S4x1x16_0_2 : (⟨S4x16, .f32⟩ : BufTy).Contents (Elt F) → (⟨S4x1x16, .f32⟩ : BufTy).Contents (Elt F)),
    unary main_v2578 main_v2579 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2575 main_v2579 main_v2580 (mulf : (⟨S4x256x16, .f32⟩ : BufTy).Contents (Elt F) → (⟨S4x256x16, .f32⟩ : BufTy).Contents (Elt F) → (⟨S4x256x16, .f32⟩ : BufTy).Contents (Elt F)),
    nullary main_cst_256 (constant S_ .f32 0x00000000#32),
    binary main_v2580 main_cst_256 main_v2581 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_257 (constantI S_ 32 128#32),
    unary main_c_257 main_v2582 (broadcastInDim S1 ![] bcast_S_S1 : (⟨S_, .i32⟩ : BufTy).Contents (Elt F) → (⟨S1, .i32⟩ : BufTy).Contents (Elt F)),
    ternary main_v2563 main_v2582 main_v2581 main_v2583 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps128_ok : (stepOps128 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step128_val (V : Valuation τ sig (Elt Ideal)) :
    after (stepOps128 (F := Ideal)) V (no_index (Proc.devRef .tc main_v2575)) = stepH 128 (by decide) (V (Proc.devRef .tc main_arg0)) (V (Proc.devRef .tc main_v3)) (V (Proc.devRef .tc main_arg2)) (V (Proc.devRef .tc main_v2555))
    ∧ after (stepOps128 (F := Ideal)) V (no_index (Proc.devRef .tc main_v2583)) = stepY 128 (by decide) (V (Proc.devRef .tc main_arg3)) (stepH 128 (by decide) (V (Proc.devRef .tc main_arg0)) (V (Proc.devRef .tc main_v3)) (V (Proc.devRef .tc main_arg2)) (V (Proc.devRef .tc main_v2555))) (V (Proc.devRef .tc main_v2563)) := by
  simp only [stepOps128]
  after_results_simp
  first | exact ⟨rfl, rfl⟩ | fail "value"
/-- Step 129 of the loop: operations 2845 … 2866 of the program. -/
abbrev stepOps129 : List (HloOp τ sig (Elt F)) :=
  [ unary main_v3 main_v2584 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2575 main_v2584 main_v2585 (mulf : (⟨S4x256x16, .f32⟩ : BufTy).Contents (Elt F) → (⟨S4x256x16, .f32⟩ : BufTy).Contents (Elt F) → (⟨S4x256x16, .f32⟩ : BufTy).Contents (Elt F)),
    unary main_arg0 main_v2586 ((extractStridedSlice S4x1x256 ![0, 129, 0] · slices_S4x512x256_S4x1x256_0_129_0) : (⟨S4x512x256, .f32⟩ : BufTy).Contents (Elt F) → (⟨S4x1x256, .f32⟩ : BufTy).Contents (Elt F)),
    reshape main_v2586 main_v2587 rfl shapeCasts_S4x1x256_S4x256,
    unary main_v2587 main_v2588 (broadcastInDim S4x256x1 ![0, 1] bcast_S4x256_S4x256x1_0_1 : (⟨S4x256, .f32⟩ : BufTy).Contents (Elt F) → (⟨S4x256x1, .f32⟩ : BufTy).Contents (Elt F)),
    unary main_arg2 main_v2589 ((extractStridedSlice S4x1x16 ![0, 129, 0] · slices_S4x512x16_S4x1x16_0_129_0) : (⟨S4x512x16, .f32⟩ : BufTy).Contents (Elt F) → (⟨S4x1x16, .f32⟩ : BufTy).Contents (Elt F)),
    reshape main_v2589 main_v2590 rfl shapeCasts_S4x1x16_S4x16,
    unary main_v2590 main_v2591 (broadcastInDim S4x1x16 ![0, 2] bcast_S4x16_S4x1x16_0_2 : (⟨S4x16, .f32⟩ : BufTy).Contents (Elt F) → (⟨S4x1x16, .f32⟩ : BufTy).Contents (Elt F)),
    unary main_v2588 main_v2592 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2591 main_v2593 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2592 main_v2593 main_v2594 (mulf : (⟨S4x256x16, .f32⟩ : BufTy).Contents (Elt F) → (⟨S4x256x16, .f32⟩ : BufTy).Contents (Elt F) → (⟨S4x256x16, .f32⟩ : BufTy).Contents (Elt F)),
    binary main_v2585 main_v2594 main_v2595 (addf : (⟨S4x256x16, .f32⟩ : BufTy).Contents (Elt F) → (⟨S4x256x16, .f32⟩ : BufTy).Contents (Elt F) → (⟨S4x256x16, .f32⟩ : BufTy).Contents (Elt F)),
    unary main_arg3 main_v2596 ((extractStridedSlice S4x1x16 ![0, 129, 0] · slices_S4x512x16_S4x1x16_0_129_0) : (⟨S4x512x16, .f32⟩ : BufTy).Contents (Elt F) → (⟨S4x1x16, .f32⟩ : BufTy).Contents (Elt F)),
    reshape main_v2596 main_v2597 rfl shapeCasts_S4x1x16_S4x16,
    unary main_v2597 main_v2598 (broadcastInDim S4x1x16 ![0, 2] bcast_S4x16_S4x1x16_0_2 : (⟨S4x16, .f32⟩ : BufTy).Contents (Elt F) → (⟨S4x1x16, .f32⟩ : BufTy).Contents (Elt F)),
    unary main_v2598 main_v2599 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2595 main_v2599 main_v2600 (mulf : (⟨S4x256x16, .f32⟩ : BufTy).Contents (Elt F) → (⟨S4x256x16, .f32⟩ : BufTy).Contents (Elt F) → (⟨S4x256x16, .f32⟩ : BufTy).Contents (Elt F)),
    nullary main_cst_258 (constant S_ .f32 0x00000000#32),
    binary main_v2600 main_cst_258 main_v2601 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_259 (constantI S_ 32 129#32),
    unary main_c_259 main_v2602 (broadcastInDim S1 ![] bcast_S_S1 : (⟨S_, .i32⟩ : BufTy).Contents (Elt F) → (⟨S1, .i32⟩ : BufTy).Contents (Elt F)),
    ternary main_v2583 main_v2602 main_v2601 main_v2603 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps129_ok : (stepOps129 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step129_val (V : Valuation τ sig (Elt Ideal)) :
    after (stepOps129 (F := Ideal)) V (no_index (Proc.devRef .tc main_v2595)) = stepH 129 (by decide) (V (Proc.devRef .tc main_arg0)) (V (Proc.devRef .tc main_v3)) (V (Proc.devRef .tc main_arg2)) (V (Proc.devRef .tc main_v2575))
    ∧ after (stepOps129 (F := Ideal)) V (no_index (Proc.devRef .tc main_v2603)) = stepY 129 (by decide) (V (Proc.devRef .tc main_arg3)) (stepH 129 (by decide) (V (Proc.devRef .tc main_arg0)) (V (Proc.devRef .tc main_v3)) (V (Proc.devRef .tc main_arg2)) (V (Proc.devRef .tc main_v2575))) (V (Proc.devRef .tc main_v2583)) := by
  simp only [stepOps129]
  after_results_simp
  first | exact ⟨rfl, rfl⟩ | fail "value"
/-- Step 130 of the loop: operations 2867 … 2888 of the program. -/
abbrev stepOps130 : List (HloOp τ sig (Elt F)) :=
  [ unary main_v3 main_v2604 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2595 main_v2604 main_v2605 (mulf : (⟨S4x256x16, .f32⟩ : BufTy).Contents (Elt F) → (⟨S4x256x16, .f32⟩ : BufTy).Contents (Elt F) → (⟨S4x256x16, .f32⟩ : BufTy).Contents (Elt F)),
    unary main_arg0 main_v2606 ((extractStridedSlice S4x1x256 ![0, 130, 0] · slices_S4x512x256_S4x1x256_0_130_0) : (⟨S4x512x256, .f32⟩ : BufTy).Contents (Elt F) → (⟨S4x1x256, .f32⟩ : BufTy).Contents (Elt F)),
    reshape main_v2606 main_v2607 rfl shapeCasts_S4x1x256_S4x256,
    unary main_v2607 main_v2608 (broadcastInDim S4x256x1 ![0, 1] bcast_S4x256_S4x256x1_0_1 : (⟨S4x256, .f32⟩ : BufTy).Contents (Elt F) → (⟨S4x256x1, .f32⟩ : BufTy).Contents (Elt F)),
    unary main_arg2 main_v2609 ((extractStridedSlice S4x1x16 ![0, 130, 0] · slices_S4x512x16_S4x1x16_0_130_0) : (⟨S4x512x16, .f32⟩ : BufTy).Contents (Elt F) → (⟨S4x1x16, .f32⟩ : BufTy).Contents (Elt F)),
    reshape main_v2609 main_v2610 rfl shapeCasts_S4x1x16_S4x16,
    unary main_v2610 main_v2611 (broadcastInDim S4x1x16 ![0, 2] bcast_S4x16_S4x1x16_0_2 : (⟨S4x16, .f32⟩ : BufTy).Contents (Elt F) → (⟨S4x1x16, .f32⟩ : BufTy).Contents (Elt F)),
    unary main_v2608 main_v2612 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2611 main_v2613 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2612 main_v2613 main_v2614 (mulf : (⟨S4x256x16, .f32⟩ : BufTy).Contents (Elt F) → (⟨S4x256x16, .f32⟩ : BufTy).Contents (Elt F) → (⟨S4x256x16, .f32⟩ : BufTy).Contents (Elt F)),
    binary main_v2605 main_v2614 main_v2615 (addf : (⟨S4x256x16, .f32⟩ : BufTy).Contents (Elt F) → (⟨S4x256x16, .f32⟩ : BufTy).Contents (Elt F) → (⟨S4x256x16, .f32⟩ : BufTy).Contents (Elt F)),
    unary main_arg3 main_v2616 ((extractStridedSlice S4x1x16 ![0, 130, 0] · slices_S4x512x16_S4x1x16_0_130_0) : (⟨S4x512x16, .f32⟩ : BufTy).Contents (Elt F) → (⟨S4x1x16, .f32⟩ : BufTy).Contents (Elt F)),
    reshape main_v2616 main_v2617 rfl shapeCasts_S4x1x16_S4x16,
    unary main_v2617 main_v2618 (broadcastInDim S4x1x16 ![0, 2] bcast_S4x16_S4x1x16_0_2 : (⟨S4x16, .f32⟩ : BufTy).Contents (Elt F) → (⟨S4x1x16, .f32⟩ : BufTy).Contents (Elt F)),
    unary main_v2618 main_v2619 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2615 main_v2619 main_v2620 (mulf : (⟨S4x256x16, .f32⟩ : BufTy).Contents (Elt F) → (⟨S4x256x16, .f32⟩ : BufTy).Contents (Elt F) → (⟨S4x256x16, .f32⟩ : BufTy).Contents (Elt F)),
    nullary main_cst_260 (constant S_ .f32 0x00000000#32),
    binary main_v2620 main_cst_260 main_v2621 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_261 (constantI S_ 32 130#32),
    unary main_c_261 main_v2622 (broadcastInDim S1 ![] bcast_S_S1 : (⟨S_, .i32⟩ : BufTy).Contents (Elt F) → (⟨S1, .i32⟩ : BufTy).Contents (Elt F)),
    ternary main_v2603 main_v2622 main_v2621 main_v2623 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps130_ok : (stepOps130 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step130_val (V : Valuation τ sig (Elt Ideal)) :
    after (stepOps130 (F := Ideal)) V (no_index (Proc.devRef .tc main_v2615)) = stepH 130 (by decide) (V (Proc.devRef .tc main_arg0)) (V (Proc.devRef .tc main_v3)) (V (Proc.devRef .tc main_arg2)) (V (Proc.devRef .tc main_v2595))
    ∧ after (stepOps130 (F := Ideal)) V (no_index (Proc.devRef .tc main_v2623)) = stepY 130 (by decide) (V (Proc.devRef .tc main_arg3)) (stepH 130 (by decide) (V (Proc.devRef .tc main_arg0)) (V (Proc.devRef .tc main_v3)) (V (Proc.devRef .tc main_arg2)) (V (Proc.devRef .tc main_v2595))) (V (Proc.devRef .tc main_v2603)) := by
  simp only [stepOps130]
  after_results_simp
  first | exact ⟨rfl, rfl⟩ | fail "value"
/-- Step 131 of the loop: operations 2889 … 2910 of the program. -/
abbrev stepOps131 : List (HloOp τ sig (Elt F)) :=
  [ unary main_v3 main_v2624 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2615 main_v2624 main_v2625 (mulf : (⟨S4x256x16, .f32⟩ : BufTy).Contents (Elt F) → (⟨S4x256x16, .f32⟩ : BufTy).Contents (Elt F) → (⟨S4x256x16, .f32⟩ : BufTy).Contents (Elt F)),
    unary main_arg0 main_v2626 ((extractStridedSlice S4x1x256 ![0, 131, 0] · slices_S4x512x256_S4x1x256_0_131_0) : (⟨S4x512x256, .f32⟩ : BufTy).Contents (Elt F) → (⟨S4x1x256, .f32⟩ : BufTy).Contents (Elt F)),
    reshape main_v2626 main_v2627 rfl shapeCasts_S4x1x256_S4x256,
    unary main_v2627 main_v2628 (broadcastInDim S4x256x1 ![0, 1] bcast_S4x256_S4x256x1_0_1 : (⟨S4x256, .f32⟩ : BufTy).Contents (Elt F) → (⟨S4x256x1, .f32⟩ : BufTy).Contents (Elt F)),
    unary main_arg2 main_v2629 ((extractStridedSlice S4x1x16 ![0, 131, 0] · slices_S4x512x16_S4x1x16_0_131_0) : (⟨S4x512x16, .f32⟩ : BufTy).Contents (Elt F) → (⟨S4x1x16, .f32⟩ : BufTy).Contents (Elt F)),
    reshape main_v2629 main_v2630 rfl shapeCasts_S4x1x16_S4x16,
    unary main_v2630 main_v2631 (broadcastInDim S4x1x16 ![0, 2] bcast_S4x16_S4x1x16_0_2 : (⟨S4x16, .f32⟩ : BufTy).Contents (Elt F) → (⟨S4x1x16, .f32⟩ : BufTy).Contents (Elt F)),
    unary main_v2628 main_v2632 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2631 main_v2633 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2632 main_v2633 main_v2634 (mulf : (⟨S4x256x16, .f32⟩ : BufTy).Contents (Elt F) → (⟨S4x256x16, .f32⟩ : BufTy).Contents (Elt F) → (⟨S4x256x16, .f32⟩ : BufTy).Contents (Elt F)),
    binary main_v2625 main_v2634 main_v2635 (addf : (⟨S4x256x16, .f32⟩ : BufTy).Contents (Elt F) → (⟨S4x256x16, .f32⟩ : BufTy).Contents (Elt F) → (⟨S4x256x16, .f32⟩ : BufTy).Contents (Elt F)),
    unary main_arg3 main_v2636 ((extractStridedSlice S4x1x16 ![0, 131, 0] · slices_S4x512x16_S4x1x16_0_131_0) : (⟨S4x512x16, .f32⟩ : BufTy).Contents (Elt F) → (⟨S4x1x16, .f32⟩ : BufTy).Contents (Elt F)),
    reshape main_v2636 main_v2637 rfl shapeCasts_S4x1x16_S4x16,
    unary main_v2637 main_v2638 (broadcastInDim S4x1x16 ![0, 2] bcast_S4x16_S4x1x16_0_2 : (⟨S4x16, .f32⟩ : BufTy).Contents (Elt F) → (⟨S4x1x16, .f32⟩ : BufTy).Contents (Elt F)),
    unary main_v2638 main_v2639 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2635 main_v2639 main_v2640 (mulf : (⟨S4x256x16, .f32⟩ : BufTy).Contents (Elt F) → (⟨S4x256x16, .f32⟩ : BufTy).Contents (Elt F) → (⟨S4x256x16, .f32⟩ : BufTy).Contents (Elt F)),
    nullary main_cst_262 (constant S_ .f32 0x00000000#32),
    binary main_v2640 main_cst_262 main_v2641 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_263 (constantI S_ 32 131#32),
    unary main_c_263 main_v2642 (broadcastInDim S1 ![] bcast_S_S1 : (⟨S_, .i32⟩ : BufTy).Contents (Elt F) → (⟨S1, .i32⟩ : BufTy).Contents (Elt F)),
    ternary main_v2623 main_v2642 main_v2641 main_v2643 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps131_ok : (stepOps131 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step131_val (V : Valuation τ sig (Elt Ideal)) :
    after (stepOps131 (F := Ideal)) V (no_index (Proc.devRef .tc main_v2635)) = stepH 131 (by decide) (V (Proc.devRef .tc main_arg0)) (V (Proc.devRef .tc main_v3)) (V (Proc.devRef .tc main_arg2)) (V (Proc.devRef .tc main_v2615))
    ∧ after (stepOps131 (F := Ideal)) V (no_index (Proc.devRef .tc main_v2643)) = stepY 131 (by decide) (V (Proc.devRef .tc main_arg3)) (stepH 131 (by decide) (V (Proc.devRef .tc main_arg0)) (V (Proc.devRef .tc main_v3)) (V (Proc.devRef .tc main_arg2)) (V (Proc.devRef .tc main_v2615))) (V (Proc.devRef .tc main_v2623)) := by
  simp only [stepOps131]
  after_results_simp
  first | exact ⟨rfl, rfl⟩ | fail "value"
/-- Step 132 of the loop: operations 2911 … 2932 of the program. -/
abbrev stepOps132 : List (HloOp τ sig (Elt F)) :=
  [ unary main_v3 main_v2644 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2635 main_v2644 main_v2645 (mulf : (⟨S4x256x16, .f32⟩ : BufTy).Contents (Elt F) → (⟨S4x256x16, .f32⟩ : BufTy).Contents (Elt F) → (⟨S4x256x16, .f32⟩ : BufTy).Contents (Elt F)),
    unary main_arg0 main_v2646 ((extractStridedSlice S4x1x256 ![0, 132, 0] · slices_S4x512x256_S4x1x256_0_132_0) : (⟨S4x512x256, .f32⟩ : BufTy).Contents (Elt F) → (⟨S4x1x256, .f32⟩ : BufTy).Contents (Elt F)),
    reshape main_v2646 main_v2647 rfl shapeCasts_S4x1x256_S4x256,
    unary main_v2647 main_v2648 (broadcastInDim S4x256x1 ![0, 1] bcast_S4x256_S4x256x1_0_1 : (⟨S4x256, .f32⟩ : BufTy).Contents (Elt F) → (⟨S4x256x1, .f32⟩ : BufTy).Contents (Elt F)),
    unary main_arg2 main_v2649 ((extractStridedSlice S4x1x16 ![0, 132, 0] · slices_S4x512x16_S4x1x16_0_132_0) : (⟨S4x512x16, .f32⟩ : BufTy).Contents (Elt F) → (⟨S4x1x16, .f32⟩ : BufTy).Contents (Elt F)),
    reshape main_v2649 main_v2650 rfl shapeCasts_S4x1x16_S4x16,
    unary main_v2650 main_v2651 (broadcastInDim S4x1x16 ![0, 2] bcast_S4x16_S4x1x16_0_2 : (⟨S4x16, .f32⟩ : BufTy).Contents (Elt F) → (⟨S4x1x16, .f32⟩ : BufTy).Contents (Elt F)),
    unary main_v2648 main_v2652 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2651 main_v2653 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2652 main_v2653 main_v2654 (mulf : (⟨S4x256x16, .f32⟩ : BufTy).Contents (Elt F) → (⟨S4x256x16, .f32⟩ : BufTy).Contents (Elt F) → (⟨S4x256x16, .f32⟩ : BufTy).Contents (Elt F)),
    binary main_v2645 main_v2654 main_v2655 (addf : (⟨S4x256x16, .f32⟩ : BufTy).Contents (Elt F) → (⟨S4x256x16, .f32⟩ : BufTy).Contents (Elt F) → (⟨S4x256x16, .f32⟩ : BufTy).Contents (Elt F)),
    unary main_arg3 main_v2656 ((extractStridedSlice S4x1x16 ![0, 132, 0] · slices_S4x512x16_S4x1x16_0_132_0) : (⟨S4x512x16, .f32⟩ : BufTy).Contents (Elt F) → (⟨S4x1x16, .f32⟩ : BufTy).Contents (Elt F)),
    reshape main_v2656 main_v2657 rfl shapeCasts_S4x1x16_S4x16,
    unary main_v2657 main_v2658 (broadcastInDim S4x1x16 ![0, 2] bcast_S4x16_S4x1x16_0_2 : (⟨S4x16, .f32⟩ : BufTy).Contents (Elt F) → (⟨S4x1x16, .f32⟩ : BufTy).Contents (Elt F)),
    unary main_v2658 main_v2659 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2655 main_v2659 main_v2660 (mulf : (⟨S4x256x16, .f32⟩ : BufTy).Contents (Elt F) → (⟨S4x256x16, .f32⟩ : BufTy).Contents (Elt F) → (⟨S4x256x16, .f32⟩ : BufTy).Contents (Elt F)),
    nullary main_cst_264 (constant S_ .f32 0x00000000#32),
    binary main_v2660 main_cst_264 main_v2661 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_265 (constantI S_ 32 132#32),
    unary main_c_265 main_v2662 (broadcastInDim S1 ![] bcast_S_S1 : (⟨S_, .i32⟩ : BufTy).Contents (Elt F) → (⟨S1, .i32⟩ : BufTy).Contents (Elt F)),
    ternary main_v2643 main_v2662 main_v2661 main_v2663 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps132_ok : (stepOps132 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step132_val (V : Valuation τ sig (Elt Ideal)) :
    after (stepOps132 (F := Ideal)) V (no_index (Proc.devRef .tc main_v2655)) = stepH 132 (by decide) (V (Proc.devRef .tc main_arg0)) (V (Proc.devRef .tc main_v3)) (V (Proc.devRef .tc main_arg2)) (V (Proc.devRef .tc main_v2635))
    ∧ after (stepOps132 (F := Ideal)) V (no_index (Proc.devRef .tc main_v2663)) = stepY 132 (by decide) (V (Proc.devRef .tc main_arg3)) (stepH 132 (by decide) (V (Proc.devRef .tc main_arg0)) (V (Proc.devRef .tc main_v3)) (V (Proc.devRef .tc main_arg2)) (V (Proc.devRef .tc main_v2635))) (V (Proc.devRef .tc main_v2643)) := by
  simp only [stepOps132]
  after_results_simp
  first | exact ⟨rfl, rfl⟩ | fail "value"
/-- Step 133 of the loop: operations 2933 … 2954 of the program. -/
abbrev stepOps133 : List (HloOp τ sig (Elt F)) :=
  [ unary main_v3 main_v2664 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2655 main_v2664 main_v2665 (mulf : (⟨S4x256x16, .f32⟩ : BufTy).Contents (Elt F) → (⟨S4x256x16, .f32⟩ : BufTy).Contents (Elt F) → (⟨S4x256x16, .f32⟩ : BufTy).Contents (Elt F)),
    unary main_arg0 main_v2666 ((extractStridedSlice S4x1x256 ![0, 133, 0] · slices_S4x512x256_S4x1x256_0_133_0) : (⟨S4x512x256, .f32⟩ : BufTy).Contents (Elt F) → (⟨S4x1x256, .f32⟩ : BufTy).Contents (Elt F)),
    reshape main_v2666 main_v2667 rfl shapeCasts_S4x1x256_S4x256,
    unary main_v2667 main_v2668 (broadcastInDim S4x256x1 ![0, 1] bcast_S4x256_S4x256x1_0_1 : (⟨S4x256, .f32⟩ : BufTy).Contents (Elt F) → (⟨S4x256x1, .f32⟩ : BufTy).Contents (Elt F)),
    unary main_arg2 main_v2669 ((extractStridedSlice S4x1x16 ![0, 133, 0] · slices_S4x512x16_S4x1x16_0_133_0) : (⟨S4x512x16, .f32⟩ : BufTy).Contents (Elt F) → (⟨S4x1x16, .f32⟩ : BufTy).Contents (Elt F)),
    reshape main_v2669 main_v2670 rfl shapeCasts_S4x1x16_S4x16,
    unary main_v2670 main_v2671 (broadcastInDim S4x1x16 ![0, 2] bcast_S4x16_S4x1x16_0_2 : (⟨S4x16, .f32⟩ : BufTy).Contents (Elt F) → (⟨S4x1x16, .f32⟩ : BufTy).Contents (Elt F)),
    unary main_v2668 main_v2672 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2671 main_v2673 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2672 main_v2673 main_v2674 (mulf : (⟨S4x256x16, .f32⟩ : BufTy).Contents (Elt F) → (⟨S4x256x16, .f32⟩ : BufTy).Contents (Elt F) → (⟨S4x256x16, .f32⟩ : BufTy).Contents (Elt F)),
    binary main_v2665 main_v2674 main_v2675 (addf : (⟨S4x256x16, .f32⟩ : BufTy).Contents (Elt F) → (⟨S4x256x16, .f32⟩ : BufTy).Contents (Elt F) → (⟨S4x256x16, .f32⟩ : BufTy).Contents (Elt F)),
    unary main_arg3 main_v2676 ((extractStridedSlice S4x1x16 ![0, 133, 0] · slices_S4x512x16_S4x1x16_0_133_0) : (⟨S4x512x16, .f32⟩ : BufTy).Contents (Elt F) → (⟨S4x1x16, .f32⟩ : BufTy).Contents (Elt F)),
    reshape main_v2676 main_v2677 rfl shapeCasts_S4x1x16_S4x16,
    unary main_v2677 main_v2678 (broadcastInDim S4x1x16 ![0, 2] bcast_S4x16_S4x1x16_0_2 : (⟨S4x16, .f32⟩ : BufTy).Contents (Elt F) → (⟨S4x1x16, .f32⟩ : BufTy).Contents (Elt F)),
    unary main_v2678 main_v2679 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2675 main_v2679 main_v2680 (mulf : (⟨S4x256x16, .f32⟩ : BufTy).Contents (Elt F) → (⟨S4x256x16, .f32⟩ : BufTy).Contents (Elt F) → (⟨S4x256x16, .f32⟩ : BufTy).Contents (Elt F)),
    nullary main_cst_266 (constant S_ .f32 0x00000000#32),
    binary main_v2680 main_cst_266 main_v2681 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_267 (constantI S_ 32 133#32),
    unary main_c_267 main_v2682 (broadcastInDim S1 ![] bcast_S_S1 : (⟨S_, .i32⟩ : BufTy).Contents (Elt F) → (⟨S1, .i32⟩ : BufTy).Contents (Elt F)),
    ternary main_v2663 main_v2682 main_v2681 main_v2683 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps133_ok : (stepOps133 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step133_val (V : Valuation τ sig (Elt Ideal)) :
    after (stepOps133 (F := Ideal)) V (no_index (Proc.devRef .tc main_v2675)) = stepH 133 (by decide) (V (Proc.devRef .tc main_arg0)) (V (Proc.devRef .tc main_v3)) (V (Proc.devRef .tc main_arg2)) (V (Proc.devRef .tc main_v2655))
    ∧ after (stepOps133 (F := Ideal)) V (no_index (Proc.devRef .tc main_v2683)) = stepY 133 (by decide) (V (Proc.devRef .tc main_arg3)) (stepH 133 (by decide) (V (Proc.devRef .tc main_arg0)) (V (Proc.devRef .tc main_v3)) (V (Proc.devRef .tc main_arg2)) (V (Proc.devRef .tc main_v2655))) (V (Proc.devRef .tc main_v2663)) := by
  simp only [stepOps133]
  after_results_simp
  first | exact ⟨rfl, rfl⟩ | fail "value"
/-- Step 134 of the loop: operations 2955 … 2976 of the program. -/
abbrev stepOps134 : List (HloOp τ sig (Elt F)) :=
  [ unary main_v3 main_v2684 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2675 main_v2684 main_v2685 (mulf : (⟨S4x256x16, .f32⟩ : BufTy).Contents (Elt F) → (⟨S4x256x16, .f32⟩ : BufTy).Contents (Elt F) → (⟨S4x256x16, .f32⟩ : BufTy).Contents (Elt F)),
    unary main_arg0 main_v2686 ((extractStridedSlice S4x1x256 ![0, 134, 0] · slices_S4x512x256_S4x1x256_0_134_0) : (⟨S4x512x256, .f32⟩ : BufTy).Contents (Elt F) → (⟨S4x1x256, .f32⟩ : BufTy).Contents (Elt F)),
    reshape main_v2686 main_v2687 rfl shapeCasts_S4x1x256_S4x256,
    unary main_v2687 main_v2688 (broadcastInDim S4x256x1 ![0, 1] bcast_S4x256_S4x256x1_0_1 : (⟨S4x256, .f32⟩ : BufTy).Contents (Elt F) → (⟨S4x256x1, .f32⟩ : BufTy).Contents (Elt F)),
    unary main_arg2 main_v2689 ((extractStridedSlice S4x1x16 ![0, 134, 0] · slices_S4x512x16_S4x1x16_0_134_0) : (⟨S4x512x16, .f32⟩ : BufTy).Contents (Elt F) → (⟨S4x1x16, .f32⟩ : BufTy).Contents (Elt F)),
    reshape main_v2689 main_v2690 rfl shapeCasts_S4x1x16_S4x16,
    unary main_v2690 main_v2691 (broadcastInDim S4x1x16 ![0, 2] bcast_S4x16_S4x1x16_0_2 : (⟨S4x16, .f32⟩ : BufTy).Contents (Elt F) → (⟨S4x1x16, .f32⟩ : BufTy).Contents (Elt F)),
    unary main_v2688 main_v2692 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2691 main_v2693 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2692 main_v2693 main_v2694 (mulf : (⟨S4x256x16, .f32⟩ : BufTy).Contents (Elt F) → (⟨S4x256x16, .f32⟩ : BufTy).Contents (Elt F) → (⟨S4x256x16, .f32⟩ : BufTy).Contents (Elt F)),
    binary main_v2685 main_v2694 main_v2695 (addf : (⟨S4x256x16, .f32⟩ : BufTy).Contents (Elt F) → (⟨S4x256x16, .f32⟩ : BufTy).Contents (Elt F) → (⟨S4x256x16, .f32⟩ : BufTy).Contents (Elt F)),
    unary main_arg3 main_v2696 ((extractStridedSlice S4x1x16 ![0, 134, 0] · slices_S4x512x16_S4x1x16_0_134_0) : (⟨S4x512x16, .f32⟩ : BufTy).Contents (Elt F) → (⟨S4x1x16, .f32⟩ : BufTy).Contents (Elt F)),
    reshape main_v2696 main_v2697 rfl shapeCasts_S4x1x16_S4x16,
    unary main_v2697 main_v2698 (broadcastInDim S4x1x16 ![0, 2] bcast_S4x16_S4x1x16_0_2 : (⟨S4x16, .f32⟩ : BufTy).Contents (Elt F) → (⟨S4x1x16, .f32⟩ : BufTy).Contents (Elt F)),
    unary main_v2698 main_v2699 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2695 main_v2699 main_v2700 (mulf : (⟨S4x256x16, .f32⟩ : BufTy).Contents (Elt F) → (⟨S4x256x16, .f32⟩ : BufTy).Contents (Elt F) → (⟨S4x256x16, .f32⟩ : BufTy).Contents (Elt F)),
    nullary main_cst_268 (constant S_ .f32 0x00000000#32),
    binary main_v2700 main_cst_268 main_v2701 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_269 (constantI S_ 32 134#32),
    unary main_c_269 main_v2702 (broadcastInDim S1 ![] bcast_S_S1 : (⟨S_, .i32⟩ : BufTy).Contents (Elt F) → (⟨S1, .i32⟩ : BufTy).Contents (Elt F)),
    ternary main_v2683 main_v2702 main_v2701 main_v2703 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps134_ok : (stepOps134 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step134_val (V : Valuation τ sig (Elt Ideal)) :
    after (stepOps134 (F := Ideal)) V (no_index (Proc.devRef .tc main_v2695)) = stepH 134 (by decide) (V (Proc.devRef .tc main_arg0)) (V (Proc.devRef .tc main_v3)) (V (Proc.devRef .tc main_arg2)) (V (Proc.devRef .tc main_v2675))
    ∧ after (stepOps134 (F := Ideal)) V (no_index (Proc.devRef .tc main_v2703)) = stepY 134 (by decide) (V (Proc.devRef .tc main_arg3)) (stepH 134 (by decide) (V (Proc.devRef .tc main_arg0)) (V (Proc.devRef .tc main_v3)) (V (Proc.devRef .tc main_arg2)) (V (Proc.devRef .tc main_v2675))) (V (Proc.devRef .tc main_v2683)) := by
  simp only [stepOps134]
  after_results_simp
  first | exact ⟨rfl, rfl⟩ | fail "value"
/-- Step 135 of the loop: operations 2977 … 2998 of the program. -/
abbrev stepOps135 : List (HloOp τ sig (Elt F)) :=
  [ unary main_v3 main_v2704 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2695 main_v2704 main_v2705 (mulf : (⟨S4x256x16, .f32⟩ : BufTy).Contents (Elt F) → (⟨S4x256x16, .f32⟩ : BufTy).Contents (Elt F) → (⟨S4x256x16, .f32⟩ : BufTy).Contents (Elt F)),
    unary main_arg0 main_v2706 ((extractStridedSlice S4x1x256 ![0, 135, 0] · slices_S4x512x256_S4x1x256_0_135_0) : (⟨S4x512x256, .f32⟩ : BufTy).Contents (Elt F) → (⟨S4x1x256, .f32⟩ : BufTy).Contents (Elt F)),
    reshape main_v2706 main_v2707 rfl shapeCasts_S4x1x256_S4x256,
    unary main_v2707 main_v2708 (broadcastInDim S4x256x1 ![0, 1] bcast_S4x256_S4x256x1_0_1 : (⟨S4x256, .f32⟩ : BufTy).Contents (Elt F) → (⟨S4x256x1, .f32⟩ : BufTy).Contents (Elt F)),
    unary main_arg2 main_v2709 ((extractStridedSlice S4x1x16 ![0, 135, 0] · slices_S4x512x16_S4x1x16_0_135_0) : (⟨S4x512x16, .f32⟩ : BufTy).Contents (Elt F) → (⟨S4x1x16, .f32⟩ : BufTy).Contents (Elt F)),
    reshape main_v2709 main_v2710 rfl shapeCasts_S4x1x16_S4x16,
    unary main_v2710 main_v2711 (broadcastInDim S4x1x16 ![0, 2] bcast_S4x16_S4x1x16_0_2 : (⟨S4x16, .f32⟩ : BufTy).Contents (Elt F) → (⟨S4x1x16, .f32⟩ : BufTy).Contents (Elt F)),
    unary main_v2708 main_v2712 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2711 main_v2713 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2712 main_v2713 main_v2714 (mulf : (⟨S4x256x16, .f32⟩ : BufTy).Contents (Elt F) → (⟨S4x256x16, .f32⟩ : BufTy).Contents (Elt F) → (⟨S4x256x16, .f32⟩ : BufTy).Contents (Elt F)),
    binary main_v2705 main_v2714 main_v2715 (addf : (⟨S4x256x16, .f32⟩ : BufTy).Contents (Elt F) → (⟨S4x256x16, .f32⟩ : BufTy).Contents (Elt F) → (⟨S4x256x16, .f32⟩ : BufTy).Contents (Elt F)),
    unary main_arg3 main_v2716 ((extractStridedSlice S4x1x16 ![0, 135, 0] · slices_S4x512x16_S4x1x16_0_135_0) : (⟨S4x512x16, .f32⟩ : BufTy).Contents (Elt F) → (⟨S4x1x16, .f32⟩ : BufTy).Contents (Elt F)),
    reshape main_v2716 main_v2717 rfl shapeCasts_S4x1x16_S4x16,
    unary main_v2717 main_v2718 (broadcastInDim S4x1x16 ![0, 2] bcast_S4x16_S4x1x16_0_2 : (⟨S4x16, .f32⟩ : BufTy).Contents (Elt F) → (⟨S4x1x16, .f32⟩ : BufTy).Contents (Elt F)),
    unary main_v2718 main_v2719 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2715 main_v2719 main_v2720 (mulf : (⟨S4x256x16, .f32⟩ : BufTy).Contents (Elt F) → (⟨S4x256x16, .f32⟩ : BufTy).Contents (Elt F) → (⟨S4x256x16, .f32⟩ : BufTy).Contents (Elt F)),
    nullary main_cst_270 (constant S_ .f32 0x00000000#32),
    binary main_v2720 main_cst_270 main_v2721 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_271 (constantI S_ 32 135#32),
    unary main_c_271 main_v2722 (broadcastInDim S1 ![] bcast_S_S1 : (⟨S_, .i32⟩ : BufTy).Contents (Elt F) → (⟨S1, .i32⟩ : BufTy).Contents (Elt F)),
    ternary main_v2703 main_v2722 main_v2721 main_v2723 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps135_ok : (stepOps135 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step135_val (V : Valuation τ sig (Elt Ideal)) :
    after (stepOps135 (F := Ideal)) V (no_index (Proc.devRef .tc main_v2715)) = stepH 135 (by decide) (V (Proc.devRef .tc main_arg0)) (V (Proc.devRef .tc main_v3)) (V (Proc.devRef .tc main_arg2)) (V (Proc.devRef .tc main_v2695))
    ∧ after (stepOps135 (F := Ideal)) V (no_index (Proc.devRef .tc main_v2723)) = stepY 135 (by decide) (V (Proc.devRef .tc main_arg3)) (stepH 135 (by decide) (V (Proc.devRef .tc main_arg0)) (V (Proc.devRef .tc main_v3)) (V (Proc.devRef .tc main_arg2)) (V (Proc.devRef .tc main_v2695))) (V (Proc.devRef .tc main_v2703)) := by
  simp only [stepOps135]
  after_results_simp
  first | exact ⟨rfl, rfl⟩ | fail "value"
/-- Step 136 of the loop: operations 2999 … 3020 of the program. -/
abbrev stepOps136 : List (HloOp τ sig (Elt F)) :=
  [ unary main_v3 main_v2724 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2715 main_v2724 main_v2725 (mulf : (⟨S4x256x16, .f32⟩ : BufTy).Contents (Elt F) → (⟨S4x256x16, .f32⟩ : BufTy).Contents (Elt F) → (⟨S4x256x16, .f32⟩ : BufTy).Contents (Elt F)),
    unary main_arg0 main_v2726 ((extractStridedSlice S4x1x256 ![0, 136, 0] · slices_S4x512x256_S4x1x256_0_136_0) : (⟨S4x512x256, .f32⟩ : BufTy).Contents (Elt F) → (⟨S4x1x256, .f32⟩ : BufTy).Contents (Elt F)),
    reshape main_v2726 main_v2727 rfl shapeCasts_S4x1x256_S4x256,
    unary main_v2727 main_v2728 (broadcastInDim S4x256x1 ![0, 1] bcast_S4x256_S4x256x1_0_1 : (⟨S4x256, .f32⟩ : BufTy).Contents (Elt F) → (⟨S4x256x1, .f32⟩ : BufTy).Contents (Elt F)),
    unary main_arg2 main_v2729 ((extractStridedSlice S4x1x16 ![0, 136, 0] · slices_S4x512x16_S4x1x16_0_136_0) : (⟨S4x512x16, .f32⟩ : BufTy).Contents (Elt F) → (⟨S4x1x16, .f32⟩ : BufTy).Contents (Elt F)),
    reshape main_v2729 main_v2730 rfl shapeCasts_S4x1x16_S4x16,
    unary main_v2730 main_v2731 (broadcastInDim S4x1x16 ![0, 2] bcast_S4x16_S4x1x16_0_2 : (⟨S4x16, .f32⟩ : BufTy).Contents (Elt F) → (⟨S4x1x16, .f32⟩ : BufTy).Contents (Elt F)),
    unary main_v2728 main_v2732 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2731 main_v2733 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2732 main_v2733 main_v2734 (mulf : (⟨S4x256x16, .f32⟩ : BufTy).Contents (Elt F) → (⟨S4x256x16, .f32⟩ : BufTy).Contents (Elt F) → (⟨S4x256x16, .f32⟩ : BufTy).Contents (Elt F)),
    binary main_v2725 main_v2734 main_v2735 (addf : (⟨S4x256x16, .f32⟩ : BufTy).Contents (Elt F) → (⟨S4x256x16, .f32⟩ : BufTy).Contents (Elt F) → (⟨S4x256x16, .f32⟩ : BufTy).Contents (Elt F)),
    unary main_arg3 main_v2736 ((extractStridedSlice S4x1x16 ![0, 136, 0] · slices_S4x512x16_S4x1x16_0_136_0) : (⟨S4x512x16, .f32⟩ : BufTy).Contents (Elt F) → (⟨S4x1x16, .f32⟩ : BufTy).Contents (Elt F)),
    reshape main_v2736 main_v2737 rfl shapeCasts_S4x1x16_S4x16,
    unary main_v2737 main_v2738 (broadcastInDim S4x1x16 ![0, 2] bcast_S4x16_S4x1x16_0_2 : (⟨S4x16, .f32⟩ : BufTy).Contents (Elt F) → (⟨S4x1x16, .f32⟩ : BufTy).Contents (Elt F)),
    unary main_v2738 main_v2739 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2735 main_v2739 main_v2740 (mulf : (⟨S4x256x16, .f32⟩ : BufTy).Contents (Elt F) → (⟨S4x256x16, .f32⟩ : BufTy).Contents (Elt F) → (⟨S4x256x16, .f32⟩ : BufTy).Contents (Elt F)),
    nullary main_cst_272 (constant S_ .f32 0x00000000#32),
    binary main_v2740 main_cst_272 main_v2741 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_273 (constantI S_ 32 136#32),
    unary main_c_273 main_v2742 (broadcastInDim S1 ![] bcast_S_S1 : (⟨S_, .i32⟩ : BufTy).Contents (Elt F) → (⟨S1, .i32⟩ : BufTy).Contents (Elt F)),
    ternary main_v2723 main_v2742 main_v2741 main_v2743 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps136_ok : (stepOps136 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step136_val (V : Valuation τ sig (Elt Ideal)) :
    after (stepOps136 (F := Ideal)) V (no_index (Proc.devRef .tc main_v2735)) = stepH 136 (by decide) (V (Proc.devRef .tc main_arg0)) (V (Proc.devRef .tc main_v3)) (V (Proc.devRef .tc main_arg2)) (V (Proc.devRef .tc main_v2715))
    ∧ after (stepOps136 (F := Ideal)) V (no_index (Proc.devRef .tc main_v2743)) = stepY 136 (by decide) (V (Proc.devRef .tc main_arg3)) (stepH 136 (by decide) (V (Proc.devRef .tc main_arg0)) (V (Proc.devRef .tc main_v3)) (V (Proc.devRef .tc main_arg2)) (V (Proc.devRef .tc main_v2715))) (V (Proc.devRef .tc main_v2723)) := by
  simp only [stepOps136]
  after_results_simp
  first | exact ⟨rfl, rfl⟩ | fail "value"
/-- Step 137 of the loop: operations 3021 … 3042 of the program. -/
abbrev stepOps137 : List (HloOp τ sig (Elt F)) :=
  [ unary main_v3 main_v2744 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2735 main_v2744 main_v2745 (mulf : (⟨S4x256x16, .f32⟩ : BufTy).Contents (Elt F) → (⟨S4x256x16, .f32⟩ : BufTy).Contents (Elt F) → (⟨S4x256x16, .f32⟩ : BufTy).Contents (Elt F)),
    unary main_arg0 main_v2746 ((extractStridedSlice S4x1x256 ![0, 137, 0] · slices_S4x512x256_S4x1x256_0_137_0) : (⟨S4x512x256, .f32⟩ : BufTy).Contents (Elt F) → (⟨S4x1x256, .f32⟩ : BufTy).Contents (Elt F)),
    reshape main_v2746 main_v2747 rfl shapeCasts_S4x1x256_S4x256,
    unary main_v2747 main_v2748 (broadcastInDim S4x256x1 ![0, 1] bcast_S4x256_S4x256x1_0_1 : (⟨S4x256, .f32⟩ : BufTy).Contents (Elt F) → (⟨S4x256x1, .f32⟩ : BufTy).Contents (Elt F)),
    unary main_arg2 main_v2749 ((extractStridedSlice S4x1x16 ![0, 137, 0] · slices_S4x512x16_S4x1x16_0_137_0) : (⟨S4x512x16, .f32⟩ : BufTy).Contents (Elt F) → (⟨S4x1x16, .f32⟩ : BufTy).Contents (Elt F)),
    reshape main_v2749 main_v2750 rfl shapeCasts_S4x1x16_S4x16,
    unary main_v2750 main_v2751 (broadcastInDim S4x1x16 ![0, 2] bcast_S4x16_S4x1x16_0_2 : (⟨S4x16, .f32⟩ : BufTy).Contents (Elt F) → (⟨S4x1x16, .f32⟩ : BufTy).Contents (Elt F)),
    unary main_v2748 main_v2752 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2751 main_v2753 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2752 main_v2753 main_v2754 (mulf : (⟨S4x256x16, .f32⟩ : BufTy).Contents (Elt F) → (⟨S4x256x16, .f32⟩ : BufTy).Contents (Elt F) → (⟨S4x256x16, .f32⟩ : BufTy).Contents (Elt F)),
    binary main_v2745 main_v2754 main_v2755 (addf : (⟨S4x256x16, .f32⟩ : BufTy).Contents (Elt F) → (⟨S4x256x16, .f32⟩ : BufTy).Contents (Elt F) → (⟨S4x256x16, .f32⟩ : BufTy).Contents (Elt F)),
    unary main_arg3 main_v2756 ((extractStridedSlice S4x1x16 ![0, 137, 0] · slices_S4x512x16_S4x1x16_0_137_0) : (⟨S4x512x16, .f32⟩ : BufTy).Contents (Elt F) → (⟨S4x1x16, .f32⟩ : BufTy).Contents (Elt F)),
    reshape main_v2756 main_v2757 rfl shapeCasts_S4x1x16_S4x16,
    unary main_v2757 main_v2758 (broadcastInDim S4x1x16 ![0, 2] bcast_S4x16_S4x1x16_0_2 : (⟨S4x16, .f32⟩ : BufTy).Contents (Elt F) → (⟨S4x1x16, .f32⟩ : BufTy).Contents (Elt F)),
    unary main_v2758 main_v2759 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2755 main_v2759 main_v2760 (mulf : (⟨S4x256x16, .f32⟩ : BufTy).Contents (Elt F) → (⟨S4x256x16, .f32⟩ : BufTy).Contents (Elt F) → (⟨S4x256x16, .f32⟩ : BufTy).Contents (Elt F)),
    nullary main_cst_274 (constant S_ .f32 0x00000000#32),
    binary main_v2760 main_cst_274 main_v2761 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_275 (constantI S_ 32 137#32),
    unary main_c_275 main_v2762 (broadcastInDim S1 ![] bcast_S_S1 : (⟨S_, .i32⟩ : BufTy).Contents (Elt F) → (⟨S1, .i32⟩ : BufTy).Contents (Elt F)),
    ternary main_v2743 main_v2762 main_v2761 main_v2763 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps137_ok : (stepOps137 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step137_val (V : Valuation τ sig (Elt Ideal)) :
    after (stepOps137 (F := Ideal)) V (no_index (Proc.devRef .tc main_v2755)) = stepH 137 (by decide) (V (Proc.devRef .tc main_arg0)) (V (Proc.devRef .tc main_v3)) (V (Proc.devRef .tc main_arg2)) (V (Proc.devRef .tc main_v2735))
    ∧ after (stepOps137 (F := Ideal)) V (no_index (Proc.devRef .tc main_v2763)) = stepY 137 (by decide) (V (Proc.devRef .tc main_arg3)) (stepH 137 (by decide) (V (Proc.devRef .tc main_arg0)) (V (Proc.devRef .tc main_v3)) (V (Proc.devRef .tc main_arg2)) (V (Proc.devRef .tc main_v2735))) (V (Proc.devRef .tc main_v2743)) := by
  simp only [stepOps137]
  after_results_simp
  first | exact ⟨rfl, rfl⟩ | fail "value"
/-- Step 138 of the loop: operations 3043 … 3064 of the program. -/
abbrev stepOps138 : List (HloOp τ sig (Elt F)) :=
  [ unary main_v3 main_v2764 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2755 main_v2764 main_v2765 (mulf : (⟨S4x256x16, .f32⟩ : BufTy).Contents (Elt F) → (⟨S4x256x16, .f32⟩ : BufTy).Contents (Elt F) → (⟨S4x256x16, .f32⟩ : BufTy).Contents (Elt F)),
    unary main_arg0 main_v2766 ((extractStridedSlice S4x1x256 ![0, 138, 0] · slices_S4x512x256_S4x1x256_0_138_0) : (⟨S4x512x256, .f32⟩ : BufTy).Contents (Elt F) → (⟨S4x1x256, .f32⟩ : BufTy).Contents (Elt F)),
    reshape main_v2766 main_v2767 rfl shapeCasts_S4x1x256_S4x256,
    unary main_v2767 main_v2768 (broadcastInDim S4x256x1 ![0, 1] bcast_S4x256_S4x256x1_0_1 : (⟨S4x256, .f32⟩ : BufTy).Contents (Elt F) → (⟨S4x256x1, .f32⟩ : BufTy).Contents (Elt F)),
    unary main_arg2 main_v2769 ((extractStridedSlice S4x1x16 ![0, 138, 0] · slices_S4x512x16_S4x1x16_0_138_0) : (⟨S4x512x16, .f32⟩ : BufTy).Contents (Elt F) → (⟨S4x1x16, .f32⟩ : BufTy).Contents (Elt F)),
    reshape main_v2769 main_v2770 rfl shapeCasts_S4x1x16_S4x16,
    unary main_v2770 main_v2771 (broadcastInDim S4x1x16 ![0, 2] bcast_S4x16_S4x1x16_0_2 : (⟨S4x16, .f32⟩ : BufTy).Contents (Elt F) → (⟨S4x1x16, .f32⟩ : BufTy).Contents (Elt F)),
    unary main_v2768 main_v2772 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2771 main_v2773 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2772 main_v2773 main_v2774 (mulf : (⟨S4x256x16, .f32⟩ : BufTy).Contents (Elt F) → (⟨S4x256x16, .f32⟩ : BufTy).Contents (Elt F) → (⟨S4x256x16, .f32⟩ : BufTy).Contents (Elt F)),
    binary main_v2765 main_v2774 main_v2775 (addf : (⟨S4x256x16, .f32⟩ : BufTy).Contents (Elt F) → (⟨S4x256x16, .f32⟩ : BufTy).Contents (Elt F) → (⟨S4x256x16, .f32⟩ : BufTy).Contents (Elt F)),
    unary main_arg3 main_v2776 ((extractStridedSlice S4x1x16 ![0, 138, 0] · slices_S4x512x16_S4x1x16_0_138_0) : (⟨S4x512x16, .f32⟩ : BufTy).Contents (Elt F) → (⟨S4x1x16, .f32⟩ : BufTy).Contents (Elt F)),
    reshape main_v2776 main_v2777 rfl shapeCasts_S4x1x16_S4x16,
    unary main_v2777 main_v2778 (broadcastInDim S4x1x16 ![0, 2] bcast_S4x16_S4x1x16_0_2 : (⟨S4x16, .f32⟩ : BufTy).Contents (Elt F) → (⟨S4x1x16, .f32⟩ : BufTy).Contents (Elt F)),
    unary main_v2778 main_v2779 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2775 main_v2779 main_v2780 (mulf : (⟨S4x256x16, .f32⟩ : BufTy).Contents (Elt F) → (⟨S4x256x16, .f32⟩ : BufTy).Contents (Elt F) → (⟨S4x256x16, .f32⟩ : BufTy).Contents (Elt F)),
    nullary main_cst_276 (constant S_ .f32 0x00000000#32),
    binary main_v2780 main_cst_276 main_v2781 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_277 (constantI S_ 32 138#32),
    unary main_c_277 main_v2782 (broadcastInDim S1 ![] bcast_S_S1 : (⟨S_, .i32⟩ : BufTy).Contents (Elt F) → (⟨S1, .i32⟩ : BufTy).Contents (Elt F)),
    ternary main_v2763 main_v2782 main_v2781 main_v2783 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps138_ok : (stepOps138 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step138_val (V : Valuation τ sig (Elt Ideal)) :
    after (stepOps138 (F := Ideal)) V (no_index (Proc.devRef .tc main_v2775)) = stepH 138 (by decide) (V (Proc.devRef .tc main_arg0)) (V (Proc.devRef .tc main_v3)) (V (Proc.devRef .tc main_arg2)) (V (Proc.devRef .tc main_v2755))
    ∧ after (stepOps138 (F := Ideal)) V (no_index (Proc.devRef .tc main_v2783)) = stepY 138 (by decide) (V (Proc.devRef .tc main_arg3)) (stepH 138 (by decide) (V (Proc.devRef .tc main_arg0)) (V (Proc.devRef .tc main_v3)) (V (Proc.devRef .tc main_arg2)) (V (Proc.devRef .tc main_v2755))) (V (Proc.devRef .tc main_v2763)) := by
  simp only [stepOps138]
  after_results_simp
  first | exact ⟨rfl, rfl⟩ | fail "value"
/-- Step 139 of the loop: operations 3065 … 3086 of the program. -/
abbrev stepOps139 : List (HloOp τ sig (Elt F)) :=
  [ unary main_v3 main_v2784 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2775 main_v2784 main_v2785 (mulf : (⟨S4x256x16, .f32⟩ : BufTy).Contents (Elt F) → (⟨S4x256x16, .f32⟩ : BufTy).Contents (Elt F) → (⟨S4x256x16, .f32⟩ : BufTy).Contents (Elt F)),
    unary main_arg0 main_v2786 ((extractStridedSlice S4x1x256 ![0, 139, 0] · slices_S4x512x256_S4x1x256_0_139_0) : (⟨S4x512x256, .f32⟩ : BufTy).Contents (Elt F) → (⟨S4x1x256, .f32⟩ : BufTy).Contents (Elt F)),
    reshape main_v2786 main_v2787 rfl shapeCasts_S4x1x256_S4x256,
    unary main_v2787 main_v2788 (broadcastInDim S4x256x1 ![0, 1] bcast_S4x256_S4x256x1_0_1 : (⟨S4x256, .f32⟩ : BufTy).Contents (Elt F) → (⟨S4x256x1, .f32⟩ : BufTy).Contents (Elt F)),
    unary main_arg2 main_v2789 ((extractStridedSlice S4x1x16 ![0, 139, 0] · slices_S4x512x16_S4x1x16_0_139_0) : (⟨S4x512x16, .f32⟩ : BufTy).Contents (Elt F) → (⟨S4x1x16, .f32⟩ : BufTy).Contents (Elt F)),
    reshape main_v2789 main_v2790 rfl shapeCasts_S4x1x16_S4x16,
    unary main_v2790 main_v2791 (broadcastInDim S4x1x16 ![0, 2] bcast_S4x16_S4x1x16_0_2 : (⟨S4x16, .f32⟩ : BufTy).Contents (Elt F) → (⟨S4x1x16, .f32⟩ : BufTy).Contents (Elt F)),
    unary main_v2788 main_v2792 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2791 main_v2793 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2792 main_v2793 main_v2794 (mulf : (⟨S4x256x16, .f32⟩ : BufTy).Contents (Elt F) → (⟨S4x256x16, .f32⟩ : BufTy).Contents (Elt F) → (⟨S4x256x16, .f32⟩ : BufTy).Contents (Elt F)),
    binary main_v2785 main_v2794 main_v2795 (addf : (⟨S4x256x16, .f32⟩ : BufTy).Contents (Elt F) → (⟨S4x256x16, .f32⟩ : BufTy).Contents (Elt F) → (⟨S4x256x16, .f32⟩ : BufTy).Contents (Elt F)),
    unary main_arg3 main_v2796 ((extractStridedSlice S4x1x16 ![0, 139, 0] · slices_S4x512x16_S4x1x16_0_139_0) : (⟨S4x512x16, .f32⟩ : BufTy).Contents (Elt F) → (⟨S4x1x16, .f32⟩ : BufTy).Contents (Elt F)),
    reshape main_v2796 main_v2797 rfl shapeCasts_S4x1x16_S4x16,
    unary main_v2797 main_v2798 (broadcastInDim S4x1x16 ![0, 2] bcast_S4x16_S4x1x16_0_2 : (⟨S4x16, .f32⟩ : BufTy).Contents (Elt F) → (⟨S4x1x16, .f32⟩ : BufTy).Contents (Elt F)),
    unary main_v2798 main_v2799 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2795 main_v2799 main_v2800 (mulf : (⟨S4x256x16, .f32⟩ : BufTy).Contents (Elt F) → (⟨S4x256x16, .f32⟩ : BufTy).Contents (Elt F) → (⟨S4x256x16, .f32⟩ : BufTy).Contents (Elt F)),
    nullary main_cst_278 (constant S_ .f32 0x00000000#32),
    binary main_v2800 main_cst_278 main_v2801 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_279 (constantI S_ 32 139#32),
    unary main_c_279 main_v2802 (broadcastInDim S1 ![] bcast_S_S1 : (⟨S_, .i32⟩ : BufTy).Contents (Elt F) → (⟨S1, .i32⟩ : BufTy).Contents (Elt F)),
    ternary main_v2783 main_v2802 main_v2801 main_v2803 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps139_ok : (stepOps139 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step139_val (V : Valuation τ sig (Elt Ideal)) :
    after (stepOps139 (F := Ideal)) V (no_index (Proc.devRef .tc main_v2795)) = stepH 139 (by decide) (V (Proc.devRef .tc main_arg0)) (V (Proc.devRef .tc main_v3)) (V (Proc.devRef .tc main_arg2)) (V (Proc.devRef .tc main_v2775))
    ∧ after (stepOps139 (F := Ideal)) V (no_index (Proc.devRef .tc main_v2803)) = stepY 139 (by decide) (V (Proc.devRef .tc main_arg3)) (stepH 139 (by decide) (V (Proc.devRef .tc main_arg0)) (V (Proc.devRef .tc main_v3)) (V (Proc.devRef .tc main_arg2)) (V (Proc.devRef .tc main_v2775))) (V (Proc.devRef .tc main_v2783)) := by
  simp only [stepOps139]
  after_results_simp
  first | exact ⟨rfl, rfl⟩ | fail "value"
/-- Step 140 of the loop: operations 3087 … 3108 of the program. -/
abbrev stepOps140 : List (HloOp τ sig (Elt F)) :=
  [ unary main_v3 main_v2804 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2795 main_v2804 main_v2805 (mulf : (⟨S4x256x16, .f32⟩ : BufTy).Contents (Elt F) → (⟨S4x256x16, .f32⟩ : BufTy).Contents (Elt F) → (⟨S4x256x16, .f32⟩ : BufTy).Contents (Elt F)),
    unary main_arg0 main_v2806 ((extractStridedSlice S4x1x256 ![0, 140, 0] · slices_S4x512x256_S4x1x256_0_140_0) : (⟨S4x512x256, .f32⟩ : BufTy).Contents (Elt F) → (⟨S4x1x256, .f32⟩ : BufTy).Contents (Elt F)),
    reshape main_v2806 main_v2807 rfl shapeCasts_S4x1x256_S4x256,
    unary main_v2807 main_v2808 (broadcastInDim S4x256x1 ![0, 1] bcast_S4x256_S4x256x1_0_1 : (⟨S4x256, .f32⟩ : BufTy).Contents (Elt F) → (⟨S4x256x1, .f32⟩ : BufTy).Contents (Elt F)),
    unary main_arg2 main_v2809 ((extractStridedSlice S4x1x16 ![0, 140, 0] · slices_S4x512x16_S4x1x16_0_140_0) : (⟨S4x512x16, .f32⟩ : BufTy).Contents (Elt F) → (⟨S4x1x16, .f32⟩ : BufTy).Contents (Elt F)),
    reshape main_v2809 main_v2810 rfl shapeCasts_S4x1x16_S4x16,
    unary main_v2810 main_v2811 (broadcastInDim S4x1x16 ![0, 2] bcast_S4x16_S4x1x16_0_2 : (⟨S4x16, .f32⟩ : BufTy).Contents (Elt F) → (⟨S4x1x16, .f32⟩ : BufTy).Contents (Elt F)),
    unary main_v2808 main_v2812 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2811 main_v2813 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2812 main_v2813 main_v2814 (mulf : (⟨S4x256x16, .f32⟩ : BufTy).Contents (Elt F) → (⟨S4x256x16, .f32⟩ : BufTy).Contents (Elt F) → (⟨S4x256x16, .f32⟩ : BufTy).Contents (Elt F)),
    binary main_v2805 main_v2814 main_v2815 (addf : (⟨S4x256x16, .f32⟩ : BufTy).Contents (Elt F) → (⟨S4x256x16, .f32⟩ : BufTy).Contents (Elt F) → (⟨S4x256x16, .f32⟩ : BufTy).Contents (Elt F)),
    unary main_arg3 main_v2816 ((extractStridedSlice S4x1x16 ![0, 140, 0] · slices_S4x512x16_S4x1x16_0_140_0) : (⟨S4x512x16, .f32⟩ : BufTy).Contents (Elt F) → (⟨S4x1x16, .f32⟩ : BufTy).Contents (Elt F)),
    reshape main_v2816 main_v2817 rfl shapeCasts_S4x1x16_S4x16,
    unary main_v2817 main_v2818 (broadcastInDim S4x1x16 ![0, 2] bcast_S4x16_S4x1x16_0_2 : (⟨S4x16, .f32⟩ : BufTy).Contents (Elt F) → (⟨S4x1x16, .f32⟩ : BufTy).Contents (Elt F)),
    unary main_v2818 main_v2819 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2815 main_v2819 main_v2820 (mulf : (⟨S4x256x16, .f32⟩ : BufTy).Contents (Elt F) → (⟨S4x256x16, .f32⟩ : BufTy).Contents (Elt F) → (⟨S4x256x16, .f32⟩ : BufTy).Contents (Elt F)),
    nullary main_cst_280 (constant S_ .f32 0x00000000#32),
    binary main_v2820 main_cst_280 main_v2821 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_281 (constantI S_ 32 140#32),
    unary main_c_281 main_v2822 (broadcastInDim S1 ![] bcast_S_S1 : (⟨S_, .i32⟩ : BufTy).Contents (Elt F) → (⟨S1, .i32⟩ : BufTy).Contents (Elt F)),
    ternary main_v2803 main_v2822 main_v2821 main_v2823 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps140_ok : (stepOps140 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step140_val (V : Valuation τ sig (Elt Ideal)) :
    after (stepOps140 (F := Ideal)) V (no_index (Proc.devRef .tc main_v2815)) = stepH 140 (by decide) (V (Proc.devRef .tc main_arg0)) (V (Proc.devRef .tc main_v3)) (V (Proc.devRef .tc main_arg2)) (V (Proc.devRef .tc main_v2795))
    ∧ after (stepOps140 (F := Ideal)) V (no_index (Proc.devRef .tc main_v2823)) = stepY 140 (by decide) (V (Proc.devRef .tc main_arg3)) (stepH 140 (by decide) (V (Proc.devRef .tc main_arg0)) (V (Proc.devRef .tc main_v3)) (V (Proc.devRef .tc main_arg2)) (V (Proc.devRef .tc main_v2795))) (V (Proc.devRef .tc main_v2803)) := by
  simp only [stepOps140]
  after_results_simp
  first | exact ⟨rfl, rfl⟩ | fail "value"
/-- Step 141 of the loop: operations 3109 … 3130 of the program. -/
abbrev stepOps141 : List (HloOp τ sig (Elt F)) :=
  [ unary main_v3 main_v2824 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2815 main_v2824 main_v2825 (mulf : (⟨S4x256x16, .f32⟩ : BufTy).Contents (Elt F) → (⟨S4x256x16, .f32⟩ : BufTy).Contents (Elt F) → (⟨S4x256x16, .f32⟩ : BufTy).Contents (Elt F)),
    unary main_arg0 main_v2826 ((extractStridedSlice S4x1x256 ![0, 141, 0] · slices_S4x512x256_S4x1x256_0_141_0) : (⟨S4x512x256, .f32⟩ : BufTy).Contents (Elt F) → (⟨S4x1x256, .f32⟩ : BufTy).Contents (Elt F)),
    reshape main_v2826 main_v2827 rfl shapeCasts_S4x1x256_S4x256,
    unary main_v2827 main_v2828 (broadcastInDim S4x256x1 ![0, 1] bcast_S4x256_S4x256x1_0_1 : (⟨S4x256, .f32⟩ : BufTy).Contents (Elt F) → (⟨S4x256x1, .f32⟩ : BufTy).Contents (Elt F)),
    unary main_arg2 main_v2829 ((extractStridedSlice S4x1x16 ![0, 141, 0] · slices_S4x512x16_S4x1x16_0_141_0) : (⟨S4x512x16, .f32⟩ : BufTy).Contents (Elt F) → (⟨S4x1x16, .f32⟩ : BufTy).Contents (Elt F)),
    reshape main_v2829 main_v2830 rfl shapeCasts_S4x1x16_S4x16,
    unary main_v2830 main_v2831 (broadcastInDim S4x1x16 ![0, 2] bcast_S4x16_S4x1x16_0_2 : (⟨S4x16, .f32⟩ : BufTy).Contents (Elt F) → (⟨S4x1x16, .f32⟩ : BufTy).Contents (Elt F)),
    unary main_v2828 main_v2832 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2831 main_v2833 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2832 main_v2833 main_v2834 (mulf : (⟨S4x256x16, .f32⟩ : BufTy).Contents (Elt F) → (⟨S4x256x16, .f32⟩ : BufTy).Contents (Elt F) → (⟨S4x256x16, .f32⟩ : BufTy).Contents (Elt F)),
    binary main_v2825 main_v2834 main_v2835 (addf : (⟨S4x256x16, .f32⟩ : BufTy).Contents (Elt F) → (⟨S4x256x16, .f32⟩ : BufTy).Contents (Elt F) → (⟨S4x256x16, .f32⟩ : BufTy).Contents (Elt F)),
    unary main_arg3 main_v2836 ((extractStridedSlice S4x1x16 ![0, 141, 0] · slices_S4x512x16_S4x1x16_0_141_0) : (⟨S4x512x16, .f32⟩ : BufTy).Contents (Elt F) → (⟨S4x1x16, .f32⟩ : BufTy).Contents (Elt F)),
    reshape main_v2836 main_v2837 rfl shapeCasts_S4x1x16_S4x16,
    unary main_v2837 main_v2838 (broadcastInDim S4x1x16 ![0, 2] bcast_S4x16_S4x1x16_0_2 : (⟨S4x16, .f32⟩ : BufTy).Contents (Elt F) → (⟨S4x1x16, .f32⟩ : BufTy).Contents (Elt F)),
    unary main_v2838 main_v2839 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2835 main_v2839 main_v2840 (mulf : (⟨S4x256x16, .f32⟩ : BufTy).Contents (Elt F) → (⟨S4x256x16, .f32⟩ : BufTy).Contents (Elt F) → (⟨S4x256x16, .f32⟩ : BufTy).Contents (Elt F)),
    nullary main_cst_282 (constant S_ .f32 0x00000000#32),
    binary main_v2840 main_cst_282 main_v2841 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_283 (constantI S_ 32 141#32),
    unary main_c_283 main_v2842 (broadcastInDim S1 ![] bcast_S_S1 : (⟨S_, .i32⟩ : BufTy).Contents (Elt F) → (⟨S1, .i32⟩ : BufTy).Contents (Elt F)),
    ternary main_v2823 main_v2842 main_v2841 main_v2843 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps141_ok : (stepOps141 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step141_val (V : Valuation τ sig (Elt Ideal)) :
    after (stepOps141 (F := Ideal)) V (no_index (Proc.devRef .tc main_v2835)) = stepH 141 (by decide) (V (Proc.devRef .tc main_arg0)) (V (Proc.devRef .tc main_v3)) (V (Proc.devRef .tc main_arg2)) (V (Proc.devRef .tc main_v2815))
    ∧ after (stepOps141 (F := Ideal)) V (no_index (Proc.devRef .tc main_v2843)) = stepY 141 (by decide) (V (Proc.devRef .tc main_arg3)) (stepH 141 (by decide) (V (Proc.devRef .tc main_arg0)) (V (Proc.devRef .tc main_v3)) (V (Proc.devRef .tc main_arg2)) (V (Proc.devRef .tc main_v2815))) (V (Proc.devRef .tc main_v2823)) := by
  simp only [stepOps141]
  after_results_simp
  first | exact ⟨rfl, rfl⟩ | fail "value"
/-- Step 142 of the loop: operations 3131 … 3152 of the program. -/
abbrev stepOps142 : List (HloOp τ sig (Elt F)) :=
  [ unary main_v3 main_v2844 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2835 main_v2844 main_v2845 (mulf : (⟨S4x256x16, .f32⟩ : BufTy).Contents (Elt F) → (⟨S4x256x16, .f32⟩ : BufTy).Contents (Elt F) → (⟨S4x256x16, .f32⟩ : BufTy).Contents (Elt F)),
    unary main_arg0 main_v2846 ((extractStridedSlice S4x1x256 ![0, 142, 0] · slices_S4x512x256_S4x1x256_0_142_0) : (⟨S4x512x256, .f32⟩ : BufTy).Contents (Elt F) → (⟨S4x1x256, .f32⟩ : BufTy).Contents (Elt F)),
    reshape main_v2846 main_v2847 rfl shapeCasts_S4x1x256_S4x256,
    unary main_v2847 main_v2848 (broadcastInDim S4x256x1 ![0, 1] bcast_S4x256_S4x256x1_0_1 : (⟨S4x256, .f32⟩ : BufTy).Contents (Elt F) → (⟨S4x256x1, .f32⟩ : BufTy).Contents (Elt F)),
    unary main_arg2 main_v2849 ((extractStridedSlice S4x1x16 ![0, 142, 0] · slices_S4x512x16_S4x1x16_0_142_0) : (⟨S4x512x16, .f32⟩ : BufTy).Contents (Elt F) → (⟨S4x1x16, .f32⟩ : BufTy).Contents (Elt F)),
    reshape main_v2849 main_v2850 rfl shapeCasts_S4x1x16_S4x16,
    unary main_v2850 main_v2851 (broadcastInDim S4x1x16 ![0, 2] bcast_S4x16_S4x1x16_0_2 : (⟨S4x16, .f32⟩ : BufTy).Contents (Elt F) → (⟨S4x1x16, .f32⟩ : BufTy).Contents (Elt F)),
    unary main_v2848 main_v2852 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2851 main_v2853 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2852 main_v2853 main_v2854 (mulf : (⟨S4x256x16, .f32⟩ : BufTy).Contents (Elt F) → (⟨S4x256x16, .f32⟩ : BufTy).Contents (Elt F) → (⟨S4x256x16, .f32⟩ : BufTy).Contents (Elt F)),
    binary main_v2845 main_v2854 main_v2855 (addf : (⟨S4x256x16, .f32⟩ : BufTy).Contents (Elt F) → (⟨S4x256x16, .f32⟩ : BufTy).Contents (Elt F) → (⟨S4x256x16, .f32⟩ : BufTy).Contents (Elt F)),
    unary main_arg3 main_v2856 ((extractStridedSlice S4x1x16 ![0, 142, 0] · slices_S4x512x16_S4x1x16_0_142_0) : (⟨S4x512x16, .f32⟩ : BufTy).Contents (Elt F) → (⟨S4x1x16, .f32⟩ : BufTy).Contents (Elt F)),
    reshape main_v2856 main_v2857 rfl shapeCasts_S4x1x16_S4x16,
    unary main_v2857 main_v2858 (broadcastInDim S4x1x16 ![0, 2] bcast_S4x16_S4x1x16_0_2 : (⟨S4x16, .f32⟩ : BufTy).Contents (Elt F) → (⟨S4x1x16, .f32⟩ : BufTy).Contents (Elt F)),
    unary main_v2858 main_v2859 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2855 main_v2859 main_v2860 (mulf : (⟨S4x256x16, .f32⟩ : BufTy).Contents (Elt F) → (⟨S4x256x16, .f32⟩ : BufTy).Contents (Elt F) → (⟨S4x256x16, .f32⟩ : BufTy).Contents (Elt F)),
    nullary main_cst_284 (constant S_ .f32 0x00000000#32),
    binary main_v2860 main_cst_284 main_v2861 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_285 (constantI S_ 32 142#32),
    unary main_c_285 main_v2862 (broadcastInDim S1 ![] bcast_S_S1 : (⟨S_, .i32⟩ : BufTy).Contents (Elt F) → (⟨S1, .i32⟩ : BufTy).Contents (Elt F)),
    ternary main_v2843 main_v2862 main_v2861 main_v2863 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps142_ok : (stepOps142 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step142_val (V : Valuation τ sig (Elt Ideal)) :
    after (stepOps142 (F := Ideal)) V (no_index (Proc.devRef .tc main_v2855)) = stepH 142 (by decide) (V (Proc.devRef .tc main_arg0)) (V (Proc.devRef .tc main_v3)) (V (Proc.devRef .tc main_arg2)) (V (Proc.devRef .tc main_v2835))
    ∧ after (stepOps142 (F := Ideal)) V (no_index (Proc.devRef .tc main_v2863)) = stepY 142 (by decide) (V (Proc.devRef .tc main_arg3)) (stepH 142 (by decide) (V (Proc.devRef .tc main_arg0)) (V (Proc.devRef .tc main_v3)) (V (Proc.devRef .tc main_arg2)) (V (Proc.devRef .tc main_v2835))) (V (Proc.devRef .tc main_v2843)) := by
  simp only [stepOps142]
  after_results_simp
  first | exact ⟨rfl, rfl⟩ | fail "value"
/-- Step 143 of the loop: operations 3153 … 3174 of the program. -/
abbrev stepOps143 : List (HloOp τ sig (Elt F)) :=
  [ unary main_v3 main_v2864 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2855 main_v2864 main_v2865 (mulf : (⟨S4x256x16, .f32⟩ : BufTy).Contents (Elt F) → (⟨S4x256x16, .f32⟩ : BufTy).Contents (Elt F) → (⟨S4x256x16, .f32⟩ : BufTy).Contents (Elt F)),
    unary main_arg0 main_v2866 ((extractStridedSlice S4x1x256 ![0, 143, 0] · slices_S4x512x256_S4x1x256_0_143_0) : (⟨S4x512x256, .f32⟩ : BufTy).Contents (Elt F) → (⟨S4x1x256, .f32⟩ : BufTy).Contents (Elt F)),
    reshape main_v2866 main_v2867 rfl shapeCasts_S4x1x256_S4x256,
    unary main_v2867 main_v2868 (broadcastInDim S4x256x1 ![0, 1] bcast_S4x256_S4x256x1_0_1 : (⟨S4x256, .f32⟩ : BufTy).Contents (Elt F) → (⟨S4x256x1, .f32⟩ : BufTy).Contents (Elt F)),
    unary main_arg2 main_v2869 ((extractStridedSlice S4x1x16 ![0, 143, 0] · slices_S4x512x16_S4x1x16_0_143_0) : (⟨S4x512x16, .f32⟩ : BufTy).Contents (Elt F) → (⟨S4x1x16, .f32⟩ : BufTy).Contents (Elt F)),
    reshape main_v2869 main_v2870 rfl shapeCasts_S4x1x16_S4x16,
    unary main_v2870 main_v2871 (broadcastInDim S4x1x16 ![0, 2] bcast_S4x16_S4x1x16_0_2 : (⟨S4x16, .f32⟩ : BufTy).Contents (Elt F) → (⟨S4x1x16, .f32⟩ : BufTy).Contents (Elt F)),
    unary main_v2868 main_v2872 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2871 main_v2873 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2872 main_v2873 main_v2874 (mulf : (⟨S4x256x16, .f32⟩ : BufTy).Contents (Elt F) → (⟨S4x256x16, .f32⟩ : BufTy).Contents (Elt F) → (⟨S4x256x16, .f32⟩ : BufTy).Contents (Elt F)),
    binary main_v2865 main_v2874 main_v2875 (addf : (⟨S4x256x16, .f32⟩ : BufTy).Contents (Elt F) → (⟨S4x256x16, .f32⟩ : BufTy).Contents (Elt F) → (⟨S4x256x16, .f32⟩ : BufTy).Contents (Elt F)),
    unary main_arg3 main_v2876 ((extractStridedSlice S4x1x16 ![0, 143, 0] · slices_S4x512x16_S4x1x16_0_143_0) : (⟨S4x512x16, .f32⟩ : BufTy).Contents (Elt F) → (⟨S4x1x16, .f32⟩ : BufTy).Contents (Elt F)),
    reshape main_v2876 main_v2877 rfl shapeCasts_S4x1x16_S4x16,
    unary main_v2877 main_v2878 (broadcastInDim S4x1x16 ![0, 2] bcast_S4x16_S4x1x16_0_2 : (⟨S4x16, .f32⟩ : BufTy).Contents (Elt F) → (⟨S4x1x16, .f32⟩ : BufTy).Contents (Elt F)),
    unary main_v2878 main_v2879 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2875 main_v2879 main_v2880 (mulf : (⟨S4x256x16, .f32⟩ : BufTy).Contents (Elt F) → (⟨S4x256x16, .f32⟩ : BufTy).Contents (Elt F) → (⟨S4x256x16, .f32⟩ : BufTy).Contents (Elt F)),
    nullary main_cst_286 (constant S_ .f32 0x00000000#32),
    binary main_v2880 main_cst_286 main_v2881 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_287 (constantI S_ 32 143#32),
    unary main_c_287 main_v2882 (broadcastInDim S1 ![] bcast_S_S1 : (⟨S_, .i32⟩ : BufTy).Contents (Elt F) → (⟨S1, .i32⟩ : BufTy).Contents (Elt F)),
    ternary main_v2863 main_v2882 main_v2881 main_v2883 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps143_ok : (stepOps143 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step143_val (V : Valuation τ sig (Elt Ideal)) :
    after (stepOps143 (F := Ideal)) V (no_index (Proc.devRef .tc main_v2875)) = stepH 143 (by decide) (V (Proc.devRef .tc main_arg0)) (V (Proc.devRef .tc main_v3)) (V (Proc.devRef .tc main_arg2)) (V (Proc.devRef .tc main_v2855))
    ∧ after (stepOps143 (F := Ideal)) V (no_index (Proc.devRef .tc main_v2883)) = stepY 143 (by decide) (V (Proc.devRef .tc main_arg3)) (stepH 143 (by decide) (V (Proc.devRef .tc main_arg0)) (V (Proc.devRef .tc main_v3)) (V (Proc.devRef .tc main_arg2)) (V (Proc.devRef .tc main_v2855))) (V (Proc.devRef .tc main_v2863)) := by
  simp only [stepOps143]
  after_results_simp
  first | exact ⟨rfl, rfl⟩ | fail "value"

end Cert.ReferenceIdeal.RefRun

end
-- ==== Proof.RefTableStep09.lean ====
/-
  Steps 144 … 159 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 144 of the loop: operations 3175 … 3196 of the program. -/
abbrev stepOps144 : List (HloOp τ sig (Elt F)) :=
  [ unary main_v3 main_v2884 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2875 main_v2884 main_v2885 (mulf : (⟨S4x256x16, .f32⟩ : BufTy).Contents (Elt F) → (⟨S4x256x16, .f32⟩ : BufTy).Contents (Elt F) → (⟨S4x256x16, .f32⟩ : BufTy).Contents (Elt F)),
    unary main_arg0 main_v2886 ((extractStridedSlice S4x1x256 ![0, 144, 0] · slices_S4x512x256_S4x1x256_0_144_0) : (⟨S4x512x256, .f32⟩ : BufTy).Contents (Elt F) → (⟨S4x1x256, .f32⟩ : BufTy).Contents (Elt F)),
    reshape main_v2886 main_v2887 rfl shapeCasts_S4x1x256_S4x256,
    unary main_v2887 main_v2888 (broadcastInDim S4x256x1 ![0, 1] bcast_S4x256_S4x256x1_0_1 : (⟨S4x256, .f32⟩ : BufTy).Contents (Elt F) → (⟨S4x256x1, .f32⟩ : BufTy).Contents (Elt F)),
    unary main_arg2 main_v2889 ((extractStridedSlice S4x1x16 ![0, 144, 0] · slices_S4x512x16_S4x1x16_0_144_0) : (⟨S4x512x16, .f32⟩ : BufTy).Contents (Elt F) → (⟨S4x1x16, .f32⟩ : BufTy).Contents (Elt F)),
    reshape main_v2889 main_v2890 rfl shapeCasts_S4x1x16_S4x16,
    unary main_v2890 main_v2891 (broadcastInDim S4x1x16 ![0, 2] bcast_S4x16_S4x1x16_0_2 : (⟨S4x16, .f32⟩ : BufTy).Contents (Elt F) → (⟨S4x1x16, .f32⟩ : BufTy).Contents (Elt F)),
    unary main_v2888 main_v2892 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2891 main_v2893 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2892 main_v2893 main_v2894 (mulf : (⟨S4x256x16, .f32⟩ : BufTy).Contents (Elt F) → (⟨S4x256x16, .f32⟩ : BufTy).Contents (Elt F) → (⟨S4x256x16, .f32⟩ : BufTy).Contents (Elt F)),
    binary main_v2885 main_v2894 main_v2895 (addf : (⟨S4x256x16, .f32⟩ : BufTy).Contents (Elt F) → (⟨S4x256x16, .f32⟩ : BufTy).Contents (Elt F) → (⟨S4x256x16, .f32⟩ : BufTy).Contents (Elt F)),
    unary main_arg3 main_v2896 ((extractStridedSlice S4x1x16 ![0, 144, 0] · slices_S4x512x16_S4x1x16_0_144_0) : (⟨S4x512x16, .f32⟩ : BufTy).Contents (Elt F) → (⟨S4x1x16, .f32⟩ : BufTy).Contents (Elt F)),
    reshape main_v2896 main_v2897 rfl shapeCasts_S4x1x16_S4x16,
    unary main_v2897 main_v2898 (broadcastInDim S4x1x16 ![0, 2] bcast_S4x16_S4x1x16_0_2 : (⟨S4x16, .f32⟩ : BufTy).Contents (Elt F) → (⟨S4x1x16, .f32⟩ : BufTy).Contents (Elt F)),
    unary main_v2898 main_v2899 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2895 main_v2899 main_v2900 (mulf : (⟨S4x256x16, .f32⟩ : BufTy).Contents (Elt F) → (⟨S4x256x16, .f32⟩ : BufTy).Contents (Elt F) → (⟨S4x256x16, .f32⟩ : BufTy).Contents (Elt F)),
    nullary main_cst_288 (constant S_ .f32 0x00000000#32),
    binary main_v2900 main_cst_288 main_v2901 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_289 (constantI S_ 32 144#32),
    unary main_c_289 main_v2902 (broadcastInDim S1 ![] bcast_S_S1 : (⟨S_, .i32⟩ : BufTy).Contents (Elt F) → (⟨S1, .i32⟩ : BufTy).Contents (Elt F)),
    ternary main_v2883 main_v2902 main_v2901 main_v2903 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps144_ok : (stepOps144 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step144_val (V : Valuation τ sig (Elt Ideal)) :
    after (stepOps144 (F := Ideal)) V (no_index (Proc.devRef .tc main_v2895)) = stepH 144 (by decide) (V (Proc.devRef .tc main_arg0)) (V (Proc.devRef .tc main_v3)) (V (Proc.devRef .tc main_arg2)) (V (Proc.devRef .tc main_v2875))
    ∧ after (stepOps144 (F := Ideal)) V (no_index (Proc.devRef .tc main_v2903)) = stepY 144 (by decide) (V (Proc.devRef .tc main_arg3)) (stepH 144 (by decide) (V (Proc.devRef .tc main_arg0)) (V (Proc.devRef .tc main_v3)) (V (Proc.devRef .tc main_arg2)) (V (Proc.devRef .tc main_v2875))) (V (Proc.devRef .tc main_v2883)) := by
  simp only [stepOps144]
  after_results_simp
  first | exact ⟨rfl, rfl⟩ | fail "value"
/-- Step 145 of the loop: operations 3197 … 3218 of the program. -/
abbrev stepOps145 : List (HloOp τ sig (Elt F)) :=
  [ unary main_v3 main_v2904 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2895 main_v2904 main_v2905 (mulf : (⟨S4x256x16, .f32⟩ : BufTy).Contents (Elt F) → (⟨S4x256x16, .f32⟩ : BufTy).Contents (Elt F) → (⟨S4x256x16, .f32⟩ : BufTy).Contents (Elt F)),
    unary main_arg0 main_v2906 ((extractStridedSlice S4x1x256 ![0, 145, 0] · slices_S4x512x256_S4x1x256_0_145_0) : (⟨S4x512x256, .f32⟩ : BufTy).Contents (Elt F) → (⟨S4x1x256, .f32⟩ : BufTy).Contents (Elt F)),
    reshape main_v2906 main_v2907 rfl shapeCasts_S4x1x256_S4x256,
    unary main_v2907 main_v2908 (broadcastInDim S4x256x1 ![0, 1] bcast_S4x256_S4x256x1_0_1 : (⟨S4x256, .f32⟩ : BufTy).Contents (Elt F) → (⟨S4x256x1, .f32⟩ : BufTy).Contents (Elt F)),
    unary main_arg2 main_v2909 ((extractStridedSlice S4x1x16 ![0, 145, 0] · slices_S4x512x16_S4x1x16_0_145_0) : (⟨S4x512x16, .f32⟩ : BufTy).Contents (Elt F) → (⟨S4x1x16, .f32⟩ : BufTy).Contents (Elt F)),
    reshape main_v2909 main_v2910 rfl shapeCasts_S4x1x16_S4x16,
    unary main_v2910 main_v2911 (broadcastInDim S4x1x16 ![0, 2] bcast_S4x16_S4x1x16_0_2 : (⟨S4x16, .f32⟩ : BufTy).Contents (Elt F) → (⟨S4x1x16, .f32⟩ : BufTy).Contents (Elt F)),
    unary main_v2908 main_v2912 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2911 main_v2913 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2912 main_v2913 main_v2914 (mulf : (⟨S4x256x16, .f32⟩ : BufTy).Contents (Elt F) → (⟨S4x256x16, .f32⟩ : BufTy).Contents (Elt F) → (⟨S4x256x16, .f32⟩ : BufTy).Contents (Elt F)),
    binary main_v2905 main_v2914 main_v2915 (addf : (⟨S4x256x16, .f32⟩ : BufTy).Contents (Elt F) → (⟨S4x256x16, .f32⟩ : BufTy).Contents (Elt F) → (⟨S4x256x16, .f32⟩ : BufTy).Contents (Elt F)),
    unary main_arg3 main_v2916 ((extractStridedSlice S4x1x16 ![0, 145, 0] · slices_S4x512x16_S4x1x16_0_145_0) : (⟨S4x512x16, .f32⟩ : BufTy).Contents (Elt F) → (⟨S4x1x16, .f32⟩ : BufTy).Contents (Elt F)),
    reshape main_v2916 main_v2917 rfl shapeCasts_S4x1x16_S4x16,
    unary main_v2917 main_v2918 (broadcastInDim S4x1x16 ![0, 2] bcast_S4x16_S4x1x16_0_2 : (⟨S4x16, .f32⟩ : BufTy).Contents (Elt F) → (⟨S4x1x16, .f32⟩ : BufTy).Contents (Elt F)),
    unary main_v2918 main_v2919 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2915 main_v2919 main_v2920 (mulf : (⟨S4x256x16, .f32⟩ : BufTy).Contents (Elt F) → (⟨S4x256x16, .f32⟩ : BufTy).Contents (Elt F) → (⟨S4x256x16, .f32⟩ : BufTy).Contents (Elt F)),
    nullary main_cst_290 (constant S_ .f32 0x00000000#32),
    binary main_v2920 main_cst_290 main_v2921 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_291 (constantI S_ 32 145#32),
    unary main_c_291 main_v2922 (broadcastInDim S1 ![] bcast_S_S1 : (⟨S_, .i32⟩ : BufTy).Contents (Elt F) → (⟨S1, .i32⟩ : BufTy).Contents (Elt F)),
    ternary main_v2903 main_v2922 main_v2921 main_v2923 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps145_ok : (stepOps145 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step145_val (V : Valuation τ sig (Elt Ideal)) :
    after (stepOps145 (F := Ideal)) V (no_index (Proc.devRef .tc main_v2915)) = stepH 145 (by decide) (V (Proc.devRef .tc main_arg0)) (V (Proc.devRef .tc main_v3)) (V (Proc.devRef .tc main_arg2)) (V (Proc.devRef .tc main_v2895))
    ∧ after (stepOps145 (F := Ideal)) V (no_index (Proc.devRef .tc main_v2923)) = stepY 145 (by decide) (V (Proc.devRef .tc main_arg3)) (stepH 145 (by decide) (V (Proc.devRef .tc main_arg0)) (V (Proc.devRef .tc main_v3)) (V (Proc.devRef .tc main_arg2)) (V (Proc.devRef .tc main_v2895))) (V (Proc.devRef .tc main_v2903)) := by
  simp only [stepOps145]
  after_results_simp
  first | exact ⟨rfl, rfl⟩ | fail "value"
/-- Step 146 of the loop: operations 3219 … 3240 of the program. -/
abbrev stepOps146 : List (HloOp τ sig (Elt F)) :=
  [ unary main_v3 main_v2924 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2915 main_v2924 main_v2925 (mulf : (⟨S4x256x16, .f32⟩ : BufTy).Contents (Elt F) → (⟨S4x256x16, .f32⟩ : BufTy).Contents (Elt F) → (⟨S4x256x16, .f32⟩ : BufTy).Contents (Elt F)),
    unary main_arg0 main_v2926 ((extractStridedSlice S4x1x256 ![0, 146, 0] · slices_S4x512x256_S4x1x256_0_146_0) : (⟨S4x512x256, .f32⟩ : BufTy).Contents (Elt F) → (⟨S4x1x256, .f32⟩ : BufTy).Contents (Elt F)),
    reshape main_v2926 main_v2927 rfl shapeCasts_S4x1x256_S4x256,
    unary main_v2927 main_v2928 (broadcastInDim S4x256x1 ![0, 1] bcast_S4x256_S4x256x1_0_1 : (⟨S4x256, .f32⟩ : BufTy).Contents (Elt F) → (⟨S4x256x1, .f32⟩ : BufTy).Contents (Elt F)),
    unary main_arg2 main_v2929 ((extractStridedSlice S4x1x16 ![0, 146, 0] · slices_S4x512x16_S4x1x16_0_146_0) : (⟨S4x512x16, .f32⟩ : BufTy).Contents (Elt F) → (⟨S4x1x16, .f32⟩ : BufTy).Contents (Elt F)),
    reshape main_v2929 main_v2930 rfl shapeCasts_S4x1x16_S4x16,
    unary main_v2930 main_v2931 (broadcastInDim S4x1x16 ![0, 2] bcast_S4x16_S4x1x16_0_2 : (⟨S4x16, .f32⟩ : BufTy).Contents (Elt F) → (⟨S4x1x16, .f32⟩ : BufTy).Contents (Elt F)),
    unary main_v2928 main_v2932 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2931 main_v2933 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2932 main_v2933 main_v2934 (mulf : (⟨S4x256x16, .f32⟩ : BufTy).Contents (Elt F) → (⟨S4x256x16, .f32⟩ : BufTy).Contents (Elt F) → (⟨S4x256x16, .f32⟩ : BufTy).Contents (Elt F)),
    binary main_v2925 main_v2934 main_v2935 (addf : (⟨S4x256x16, .f32⟩ : BufTy).Contents (Elt F) → (⟨S4x256x16, .f32⟩ : BufTy).Contents (Elt F) → (⟨S4x256x16, .f32⟩ : BufTy).Contents (Elt F)),
    unary main_arg3 main_v2936 ((extractStridedSlice S4x1x16 ![0, 146, 0] · slices_S4x512x16_S4x1x16_0_146_0) : (⟨S4x512x16, .f32⟩ : BufTy).Contents (Elt F) → (⟨S4x1x16, .f32⟩ : BufTy).Contents (Elt F)),
    reshape main_v2936 main_v2937 rfl shapeCasts_S4x1x16_S4x16,
    unary main_v2937 main_v2938 (broadcastInDim S4x1x16 ![0, 2] bcast_S4x16_S4x1x16_0_2 : (⟨S4x16, .f32⟩ : BufTy).Contents (Elt F) → (⟨S4x1x16, .f32⟩ : BufTy).Contents (Elt F)),
    unary main_v2938 main_v2939 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2935 main_v2939 main_v2940 (mulf : (⟨S4x256x16, .f32⟩ : BufTy).Contents (Elt F) → (⟨S4x256x16, .f32⟩ : BufTy).Contents (Elt F) → (⟨S4x256x16, .f32⟩ : BufTy).Contents (Elt F)),
    nullary main_cst_292 (constant S_ .f32 0x00000000#32),
    binary main_v2940 main_cst_292 main_v2941 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_293 (constantI S_ 32 146#32),
    unary main_c_293 main_v2942 (broadcastInDim S1 ![] bcast_S_S1 : (⟨S_, .i32⟩ : BufTy).Contents (Elt F) → (⟨S1, .i32⟩ : BufTy).Contents (Elt F)),
    ternary main_v2923 main_v2942 main_v2941 main_v2943 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps146_ok : (stepOps146 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step146_val (V : Valuation τ sig (Elt Ideal)) :
    after (stepOps146 (F := Ideal)) V (no_index (Proc.devRef .tc main_v2935)) = stepH 146 (by decide) (V (Proc.devRef .tc main_arg0)) (V (Proc.devRef .tc main_v3)) (V (Proc.devRef .tc main_arg2)) (V (Proc.devRef .tc main_v2915))
    ∧ after (stepOps146 (F := Ideal)) V (no_index (Proc.devRef .tc main_v2943)) = stepY 146 (by decide) (V (Proc.devRef .tc main_arg3)) (stepH 146 (by decide) (V (Proc.devRef .tc main_arg0)) (V (Proc.devRef .tc main_v3)) (V (Proc.devRef .tc main_arg2)) (V (Proc.devRef .tc main_v2915))) (V (Proc.devRef .tc main_v2923)) := by
  simp only [stepOps146]
  after_results_simp
  first | exact ⟨rfl, rfl⟩ | fail "value"
/-- Step 147 of the loop: operations 3241 … 3262 of the program. -/
abbrev stepOps147 : List (HloOp τ sig (Elt F)) :=
  [ unary main_v3 main_v2944 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2935 main_v2944 main_v2945 (mulf : (⟨S4x256x16, .f32⟩ : BufTy).Contents (Elt F) → (⟨S4x256x16, .f32⟩ : BufTy).Contents (Elt F) → (⟨S4x256x16, .f32⟩ : BufTy).Contents (Elt F)),
    unary main_arg0 main_v2946 ((extractStridedSlice S4x1x256 ![0, 147, 0] · slices_S4x512x256_S4x1x256_0_147_0) : (⟨S4x512x256, .f32⟩ : BufTy).Contents (Elt F) → (⟨S4x1x256, .f32⟩ : BufTy).Contents (Elt F)),
    reshape main_v2946 main_v2947 rfl shapeCasts_S4x1x256_S4x256,
    unary main_v2947 main_v2948 (broadcastInDim S4x256x1 ![0, 1] bcast_S4x256_S4x256x1_0_1 : (⟨S4x256, .f32⟩ : BufTy).Contents (Elt F) → (⟨S4x256x1, .f32⟩ : BufTy).Contents (Elt F)),
    unary main_arg2 main_v2949 ((extractStridedSlice S4x1x16 ![0, 147, 0] · slices_S4x512x16_S4x1x16_0_147_0) : (⟨S4x512x16, .f32⟩ : BufTy).Contents (Elt F) → (⟨S4x1x16, .f32⟩ : BufTy).Contents (Elt F)),
    reshape main_v2949 main_v2950 rfl shapeCasts_S4x1x16_S4x16,
    unary main_v2950 main_v2951 (broadcastInDim S4x1x16 ![0, 2] bcast_S4x16_S4x1x16_0_2 : (⟨S4x16, .f32⟩ : BufTy).Contents (Elt F) → (⟨S4x1x16, .f32⟩ : BufTy).Contents (Elt F)),
    unary main_v2948 main_v2952 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2951 main_v2953 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2952 main_v2953 main_v2954 (mulf : (⟨S4x256x16, .f32⟩ : BufTy).Contents (Elt F) → (⟨S4x256x16, .f32⟩ : BufTy).Contents (Elt F) → (⟨S4x256x16, .f32⟩ : BufTy).Contents (Elt F)),
    binary main_v2945 main_v2954 main_v2955 (addf : (⟨S4x256x16, .f32⟩ : BufTy).Contents (Elt F) → (⟨S4x256x16, .f32⟩ : BufTy).Contents (Elt F) → (⟨S4x256x16, .f32⟩ : BufTy).Contents (Elt F)),
    unary main_arg3 main_v2956 ((extractStridedSlice S4x1x16 ![0, 147, 0] · slices_S4x512x16_S4x1x16_0_147_0) : (⟨S4x512x16, .f32⟩ : BufTy).Contents (Elt F) → (⟨S4x1x16, .f32⟩ : BufTy).Contents (Elt F)),
    reshape main_v2956 main_v2957 rfl shapeCasts_S4x1x16_S4x16,
    unary main_v2957 main_v2958 (broadcastInDim S4x1x16 ![0, 2] bcast_S4x16_S4x1x16_0_2 : (⟨S4x16, .f32⟩ : BufTy).Contents (Elt F) → (⟨S4x1x16, .f32⟩ : BufTy).Contents (Elt F)),
    unary main_v2958 main_v2959 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2955 main_v2959 main_v2960 (mulf : (⟨S4x256x16, .f32⟩ : BufTy).Contents (Elt F) → (⟨S4x256x16, .f32⟩ : BufTy).Contents (Elt F) → (⟨S4x256x16, .f32⟩ : BufTy).Contents (Elt F)),
    nullary main_cst_294 (constant S_ .f32 0x00000000#32),
    binary main_v2960 main_cst_294 main_v2961 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_295 (constantI S_ 32 147#32),
    unary main_c_295 main_v2962 (broadcastInDim S1 ![] bcast_S_S1 : (⟨S_, .i32⟩ : BufTy).Contents (Elt F) → (⟨S1, .i32⟩ : BufTy).Contents (Elt F)),
    ternary main_v2943 main_v2962 main_v2961 main_v2963 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps147_ok : (stepOps147 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step147_val (V : Valuation τ sig (Elt Ideal)) :
    after (stepOps147 (F := Ideal)) V (no_index (Proc.devRef .tc main_v2955)) = stepH 147 (by decide) (V (Proc.devRef .tc main_arg0)) (V (Proc.devRef .tc main_v3)) (V (Proc.devRef .tc main_arg2)) (V (Proc.devRef .tc main_v2935))
    ∧ after (stepOps147 (F := Ideal)) V (no_index (Proc.devRef .tc main_v2963)) = stepY 147 (by decide) (V (Proc.devRef .tc main_arg3)) (stepH 147 (by decide) (V (Proc.devRef .tc main_arg0)) (V (Proc.devRef .tc main_v3)) (V (Proc.devRef .tc main_arg2)) (V (Proc.devRef .tc main_v2935))) (V (Proc.devRef .tc main_v2943)) := by
  simp only [stepOps147]
  after_results_simp
  first | exact ⟨rfl, rfl⟩ | fail "value"
/-- Step 148 of the loop: operations 3263 … 3284 of the program. -/
abbrev stepOps148 : List (HloOp τ sig (Elt F)) :=
  [ unary main_v3 main_v2964 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2955 main_v2964 main_v2965 (mulf : (⟨S4x256x16, .f32⟩ : BufTy).Contents (Elt F) → (⟨S4x256x16, .f32⟩ : BufTy).Contents (Elt F) → (⟨S4x256x16, .f32⟩ : BufTy).Contents (Elt F)),
    unary main_arg0 main_v2966 ((extractStridedSlice S4x1x256 ![0, 148, 0] · slices_S4x512x256_S4x1x256_0_148_0) : (⟨S4x512x256, .f32⟩ : BufTy).Contents (Elt F) → (⟨S4x1x256, .f32⟩ : BufTy).Contents (Elt F)),
    reshape main_v2966 main_v2967 rfl shapeCasts_S4x1x256_S4x256,
    unary main_v2967 main_v2968 (broadcastInDim S4x256x1 ![0, 1] bcast_S4x256_S4x256x1_0_1 : (⟨S4x256, .f32⟩ : BufTy).Contents (Elt F) → (⟨S4x256x1, .f32⟩ : BufTy).Contents (Elt F)),
    unary main_arg2 main_v2969 ((extractStridedSlice S4x1x16 ![0, 148, 0] · slices_S4x512x16_S4x1x16_0_148_0) : (⟨S4x512x16, .f32⟩ : BufTy).Contents (Elt F) → (⟨S4x1x16, .f32⟩ : BufTy).Contents (Elt F)),
    reshape main_v2969 main_v2970 rfl shapeCasts_S4x1x16_S4x16,
    unary main_v2970 main_v2971 (broadcastInDim S4x1x16 ![0, 2] bcast_S4x16_S4x1x16_0_2 : (⟨S4x16, .f32⟩ : BufTy).Contents (Elt F) → (⟨S4x1x16, .f32⟩ : BufTy).Contents (Elt F)),
    unary main_v2968 main_v2972 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2971 main_v2973 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2972 main_v2973 main_v2974 (mulf : (⟨S4x256x16, .f32⟩ : BufTy).Contents (Elt F) → (⟨S4x256x16, .f32⟩ : BufTy).Contents (Elt F) → (⟨S4x256x16, .f32⟩ : BufTy).Contents (Elt F)),
    binary main_v2965 main_v2974 main_v2975 (addf : (⟨S4x256x16, .f32⟩ : BufTy).Contents (Elt F) → (⟨S4x256x16, .f32⟩ : BufTy).Contents (Elt F) → (⟨S4x256x16, .f32⟩ : BufTy).Contents (Elt F)),
    unary main_arg3 main_v2976 ((extractStridedSlice S4x1x16 ![0, 148, 0] · slices_S4x512x16_S4x1x16_0_148_0) : (⟨S4x512x16, .f32⟩ : BufTy).Contents (Elt F) → (⟨S4x1x16, .f32⟩ : BufTy).Contents (Elt F)),
    reshape main_v2976 main_v2977 rfl shapeCasts_S4x1x16_S4x16,
    unary main_v2977 main_v2978 (broadcastInDim S4x1x16 ![0, 2] bcast_S4x16_S4x1x16_0_2 : (⟨S4x16, .f32⟩ : BufTy).Contents (Elt F) → (⟨S4x1x16, .f32⟩ : BufTy).Contents (Elt F)),
    unary main_v2978 main_v2979 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2975 main_v2979 main_v2980 (mulf : (⟨S4x256x16, .f32⟩ : BufTy).Contents (Elt F) → (⟨S4x256x16, .f32⟩ : BufTy).Contents (Elt F) → (⟨S4x256x16, .f32⟩ : BufTy).Contents (Elt F)),
    nullary main_cst_296 (constant S_ .f32 0x00000000#32),
    binary main_v2980 main_cst_296 main_v2981 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_297 (constantI S_ 32 148#32),
    unary main_c_297 main_v2982 (broadcastInDim S1 ![] bcast_S_S1 : (⟨S_, .i32⟩ : BufTy).Contents (Elt F) → (⟨S1, .i32⟩ : BufTy).Contents (Elt F)),
    ternary main_v2963 main_v2982 main_v2981 main_v2983 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps148_ok : (stepOps148 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step148_val (V : Valuation τ sig (Elt Ideal)) :
    after (stepOps148 (F := Ideal)) V (no_index (Proc.devRef .tc main_v2975)) = stepH 148 (by decide) (V (Proc.devRef .tc main_arg0)) (V (Proc.devRef .tc main_v3)) (V (Proc.devRef .tc main_arg2)) (V (Proc.devRef .tc main_v2955))
    ∧ after (stepOps148 (F := Ideal)) V (no_index (Proc.devRef .tc main_v2983)) = stepY 148 (by decide) (V (Proc.devRef .tc main_arg3)) (stepH 148 (by decide) (V (Proc.devRef .tc main_arg0)) (V (Proc.devRef .tc main_v3)) (V (Proc.devRef .tc main_arg2)) (V (Proc.devRef .tc main_v2955))) (V (Proc.devRef .tc main_v2963)) := by
  simp only [stepOps148]
  after_results_simp
  first | exact ⟨rfl, rfl⟩ | fail "value"
/-- Step 149 of the loop: operations 3285 … 3306 of the program. -/
abbrev stepOps149 : List (HloOp τ sig (Elt F)) :=
  [ unary main_v3 main_v2984 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2975 main_v2984 main_v2985 (mulf : (⟨S4x256x16, .f32⟩ : BufTy).Contents (Elt F) → (⟨S4x256x16, .f32⟩ : BufTy).Contents (Elt F) → (⟨S4x256x16, .f32⟩ : BufTy).Contents (Elt F)),
    unary main_arg0 main_v2986 ((extractStridedSlice S4x1x256 ![0, 149, 0] · slices_S4x512x256_S4x1x256_0_149_0) : (⟨S4x512x256, .f32⟩ : BufTy).Contents (Elt F) → (⟨S4x1x256, .f32⟩ : BufTy).Contents (Elt F)),
    reshape main_v2986 main_v2987 rfl shapeCasts_S4x1x256_S4x256,
    unary main_v2987 main_v2988 (broadcastInDim S4x256x1 ![0, 1] bcast_S4x256_S4x256x1_0_1 : (⟨S4x256, .f32⟩ : BufTy).Contents (Elt F) → (⟨S4x256x1, .f32⟩ : BufTy).Contents (Elt F)),
    unary main_arg2 main_v2989 ((extractStridedSlice S4x1x16 ![0, 149, 0] · slices_S4x512x16_S4x1x16_0_149_0) : (⟨S4x512x16, .f32⟩ : BufTy).Contents (Elt F) → (⟨S4x1x16, .f32⟩ : BufTy).Contents (Elt F)),
    reshape main_v2989 main_v2990 rfl shapeCasts_S4x1x16_S4x16,
    unary main_v2990 main_v2991 (broadcastInDim S4x1x16 ![0, 2] bcast_S4x16_S4x1x16_0_2 : (⟨S4x16, .f32⟩ : BufTy).Contents (Elt F) → (⟨S4x1x16, .f32⟩ : BufTy).Contents (Elt F)),
    unary main_v2988 main_v2992 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v2991 main_v2993 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2992 main_v2993 main_v2994 (mulf : (⟨S4x256x16, .f32⟩ : BufTy).Contents (Elt F) → (⟨S4x256x16, .f32⟩ : BufTy).Contents (Elt F) → (⟨S4x256x16, .f32⟩ : BufTy).Contents (Elt F)),
    binary main_v2985 main_v2994 main_v2995 (addf : (⟨S4x256x16, .f32⟩ : BufTy).Contents (Elt F) → (⟨S4x256x16, .f32⟩ : BufTy).Contents (Elt F) → (⟨S4x256x16, .f32⟩ : BufTy).Contents (Elt F)),
    unary main_arg3 main_v2996 ((extractStridedSlice S4x1x16 ![0, 149, 0] · slices_S4x512x16_S4x1x16_0_149_0) : (⟨S4x512x16, .f32⟩ : BufTy).Contents (Elt F) → (⟨S4x1x16, .f32⟩ : BufTy).Contents (Elt F)),
    reshape main_v2996 main_v2997 rfl shapeCasts_S4x1x16_S4x16,
    unary main_v2997 main_v2998 (broadcastInDim S4x1x16 ![0, 2] bcast_S4x16_S4x1x16_0_2 : (⟨S4x16, .f32⟩ : BufTy).Contents (Elt F) → (⟨S4x1x16, .f32⟩ : BufTy).Contents (Elt F)),
    unary main_v2998 main_v2999 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v2995 main_v2999 main_v3000 (mulf : (⟨S4x256x16, .f32⟩ : BufTy).Contents (Elt F) → (⟨S4x256x16, .f32⟩ : BufTy).Contents (Elt F) → (⟨S4x256x16, .f32⟩ : BufTy).Contents (Elt F)),
    nullary main_cst_298 (constant S_ .f32 0x00000000#32),
    binary main_v3000 main_cst_298 main_v3001 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_299 (constantI S_ 32 149#32),
    unary main_c_299 main_v3002 (broadcastInDim S1 ![] bcast_S_S1 : (⟨S_, .i32⟩ : BufTy).Contents (Elt F) → (⟨S1, .i32⟩ : BufTy).Contents (Elt F)),
    ternary main_v2983 main_v3002 main_v3001 main_v3003 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps149_ok : (stepOps149 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step149_val (V : Valuation τ sig (Elt Ideal)) :
    after (stepOps149 (F := Ideal)) V (no_index (Proc.devRef .tc main_v2995)) = stepH 149 (by decide) (V (Proc.devRef .tc main_arg0)) (V (Proc.devRef .tc main_v3)) (V (Proc.devRef .tc main_arg2)) (V (Proc.devRef .tc main_v2975))
    ∧ after (stepOps149 (F := Ideal)) V (no_index (Proc.devRef .tc main_v3003)) = stepY 149 (by decide) (V (Proc.devRef .tc main_arg3)) (stepH 149 (by decide) (V (Proc.devRef .tc main_arg0)) (V (Proc.devRef .tc main_v3)) (V (Proc.devRef .tc main_arg2)) (V (Proc.devRef .tc main_v2975))) (V (Proc.devRef .tc main_v2983)) := by
  simp only [stepOps149]
  after_results_simp
  first | exact ⟨rfl, rfl⟩ | fail "value"
/-- Step 150 of the loop: operations 3307 … 3328 of the program. -/
abbrev stepOps150 : List (HloOp τ sig (Elt F)) :=
  [ unary main_v3 main_v3004 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v2995 main_v3004 main_v3005 (mulf : (⟨S4x256x16, .f32⟩ : BufTy).Contents (Elt F) → (⟨S4x256x16, .f32⟩ : BufTy).Contents (Elt F) → (⟨S4x256x16, .f32⟩ : BufTy).Contents (Elt F)),
    unary main_arg0 main_v3006 ((extractStridedSlice S4x1x256 ![0, 150, 0] · slices_S4x512x256_S4x1x256_0_150_0) : (⟨S4x512x256, .f32⟩ : BufTy).Contents (Elt F) → (⟨S4x1x256, .f32⟩ : BufTy).Contents (Elt F)),
    reshape main_v3006 main_v3007 rfl shapeCasts_S4x1x256_S4x256,
    unary main_v3007 main_v3008 (broadcastInDim S4x256x1 ![0, 1] bcast_S4x256_S4x256x1_0_1 : (⟨S4x256, .f32⟩ : BufTy).Contents (Elt F) → (⟨S4x256x1, .f32⟩ : BufTy).Contents (Elt F)),
    unary main_arg2 main_v3009 ((extractStridedSlice S4x1x16 ![0, 150, 0] · slices_S4x512x16_S4x1x16_0_150_0) : (⟨S4x512x16, .f32⟩ : BufTy).Contents (Elt F) → (⟨S4x1x16, .f32⟩ : BufTy).Contents (Elt F)),
    reshape main_v3009 main_v3010 rfl shapeCasts_S4x1x16_S4x16,
    unary main_v3010 main_v3011 (broadcastInDim S4x1x16 ![0, 2] bcast_S4x16_S4x1x16_0_2 : (⟨S4x16, .f32⟩ : BufTy).Contents (Elt F) → (⟨S4x1x16, .f32⟩ : BufTy).Contents (Elt F)),
    unary main_v3008 main_v3012 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3011 main_v3013 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3012 main_v3013 main_v3014 (mulf : (⟨S4x256x16, .f32⟩ : BufTy).Contents (Elt F) → (⟨S4x256x16, .f32⟩ : BufTy).Contents (Elt F) → (⟨S4x256x16, .f32⟩ : BufTy).Contents (Elt F)),
    binary main_v3005 main_v3014 main_v3015 (addf : (⟨S4x256x16, .f32⟩ : BufTy).Contents (Elt F) → (⟨S4x256x16, .f32⟩ : BufTy).Contents (Elt F) → (⟨S4x256x16, .f32⟩ : BufTy).Contents (Elt F)),
    unary main_arg3 main_v3016 ((extractStridedSlice S4x1x16 ![0, 150, 0] · slices_S4x512x16_S4x1x16_0_150_0) : (⟨S4x512x16, .f32⟩ : BufTy).Contents (Elt F) → (⟨S4x1x16, .f32⟩ : BufTy).Contents (Elt F)),
    reshape main_v3016 main_v3017 rfl shapeCasts_S4x1x16_S4x16,
    unary main_v3017 main_v3018 (broadcastInDim S4x1x16 ![0, 2] bcast_S4x16_S4x1x16_0_2 : (⟨S4x16, .f32⟩ : BufTy).Contents (Elt F) → (⟨S4x1x16, .f32⟩ : BufTy).Contents (Elt F)),
    unary main_v3018 main_v3019 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3015 main_v3019 main_v3020 (mulf : (⟨S4x256x16, .f32⟩ : BufTy).Contents (Elt F) → (⟨S4x256x16, .f32⟩ : BufTy).Contents (Elt F) → (⟨S4x256x16, .f32⟩ : BufTy).Contents (Elt F)),
    nullary main_cst_300 (constant S_ .f32 0x00000000#32),
    binary main_v3020 main_cst_300 main_v3021 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_301 (constantI S_ 32 150#32),
    unary main_c_301 main_v3022 (broadcastInDim S1 ![] bcast_S_S1 : (⟨S_, .i32⟩ : BufTy).Contents (Elt F) → (⟨S1, .i32⟩ : BufTy).Contents (Elt F)),
    ternary main_v3003 main_v3022 main_v3021 main_v3023 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps150_ok : (stepOps150 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step150_val (V : Valuation τ sig (Elt Ideal)) :
    after (stepOps150 (F := Ideal)) V (no_index (Proc.devRef .tc main_v3015)) = stepH 150 (by decide) (V (Proc.devRef .tc main_arg0)) (V (Proc.devRef .tc main_v3)) (V (Proc.devRef .tc main_arg2)) (V (Proc.devRef .tc main_v2995))
    ∧ after (stepOps150 (F := Ideal)) V (no_index (Proc.devRef .tc main_v3023)) = stepY 150 (by decide) (V (Proc.devRef .tc main_arg3)) (stepH 150 (by decide) (V (Proc.devRef .tc main_arg0)) (V (Proc.devRef .tc main_v3)) (V (Proc.devRef .tc main_arg2)) (V (Proc.devRef .tc main_v2995))) (V (Proc.devRef .tc main_v3003)) := by
  simp only [stepOps150]
  after_results_simp
  first | exact ⟨rfl, rfl⟩ | fail "value"
/-- Step 151 of the loop: operations 3329 … 3350 of the program. -/
abbrev stepOps151 : List (HloOp τ sig (Elt F)) :=
  [ unary main_v3 main_v3024 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3015 main_v3024 main_v3025 (mulf : (⟨S4x256x16, .f32⟩ : BufTy).Contents (Elt F) → (⟨S4x256x16, .f32⟩ : BufTy).Contents (Elt F) → (⟨S4x256x16, .f32⟩ : BufTy).Contents (Elt F)),
    unary main_arg0 main_v3026 ((extractStridedSlice S4x1x256 ![0, 151, 0] · slices_S4x512x256_S4x1x256_0_151_0) : (⟨S4x512x256, .f32⟩ : BufTy).Contents (Elt F) → (⟨S4x1x256, .f32⟩ : BufTy).Contents (Elt F)),
    reshape main_v3026 main_v3027 rfl shapeCasts_S4x1x256_S4x256,
    unary main_v3027 main_v3028 (broadcastInDim S4x256x1 ![0, 1] bcast_S4x256_S4x256x1_0_1 : (⟨S4x256, .f32⟩ : BufTy).Contents (Elt F) → (⟨S4x256x1, .f32⟩ : BufTy).Contents (Elt F)),
    unary main_arg2 main_v3029 ((extractStridedSlice S4x1x16 ![0, 151, 0] · slices_S4x512x16_S4x1x16_0_151_0) : (⟨S4x512x16, .f32⟩ : BufTy).Contents (Elt F) → (⟨S4x1x16, .f32⟩ : BufTy).Contents (Elt F)),
    reshape main_v3029 main_v3030 rfl shapeCasts_S4x1x16_S4x16,
    unary main_v3030 main_v3031 (broadcastInDim S4x1x16 ![0, 2] bcast_S4x16_S4x1x16_0_2 : (⟨S4x16, .f32⟩ : BufTy).Contents (Elt F) → (⟨S4x1x16, .f32⟩ : BufTy).Contents (Elt F)),
    unary main_v3028 main_v3032 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3031 main_v3033 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3032 main_v3033 main_v3034 (mulf : (⟨S4x256x16, .f32⟩ : BufTy).Contents (Elt F) → (⟨S4x256x16, .f32⟩ : BufTy).Contents (Elt F) → (⟨S4x256x16, .f32⟩ : BufTy).Contents (Elt F)),
    binary main_v3025 main_v3034 main_v3035 (addf : (⟨S4x256x16, .f32⟩ : BufTy).Contents (Elt F) → (⟨S4x256x16, .f32⟩ : BufTy).Contents (Elt F) → (⟨S4x256x16, .f32⟩ : BufTy).Contents (Elt F)),
    unary main_arg3 main_v3036 ((extractStridedSlice S4x1x16 ![0, 151, 0] · slices_S4x512x16_S4x1x16_0_151_0) : (⟨S4x512x16, .f32⟩ : BufTy).Contents (Elt F) → (⟨S4x1x16, .f32⟩ : BufTy).Contents (Elt F)),
    reshape main_v3036 main_v3037 rfl shapeCasts_S4x1x16_S4x16,
    unary main_v3037 main_v3038 (broadcastInDim S4x1x16 ![0, 2] bcast_S4x16_S4x1x16_0_2 : (⟨S4x16, .f32⟩ : BufTy).Contents (Elt F) → (⟨S4x1x16, .f32⟩ : BufTy).Contents (Elt F)),
    unary main_v3038 main_v3039 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3035 main_v3039 main_v3040 (mulf : (⟨S4x256x16, .f32⟩ : BufTy).Contents (Elt F) → (⟨S4x256x16, .f32⟩ : BufTy).Contents (Elt F) → (⟨S4x256x16, .f32⟩ : BufTy).Contents (Elt F)),
    nullary main_cst_302 (constant S_ .f32 0x00000000#32),
    binary main_v3040 main_cst_302 main_v3041 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_303 (constantI S_ 32 151#32),
    unary main_c_303 main_v3042 (broadcastInDim S1 ![] bcast_S_S1 : (⟨S_, .i32⟩ : BufTy).Contents (Elt F) → (⟨S1, .i32⟩ : BufTy).Contents (Elt F)),
    ternary main_v3023 main_v3042 main_v3041 main_v3043 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps151_ok : (stepOps151 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step151_val (V : Valuation τ sig (Elt Ideal)) :
    after (stepOps151 (F := Ideal)) V (no_index (Proc.devRef .tc main_v3035)) = stepH 151 (by decide) (V (Proc.devRef .tc main_arg0)) (V (Proc.devRef .tc main_v3)) (V (Proc.devRef .tc main_arg2)) (V (Proc.devRef .tc main_v3015))
    ∧ after (stepOps151 (F := Ideal)) V (no_index (Proc.devRef .tc main_v3043)) = stepY 151 (by decide) (V (Proc.devRef .tc main_arg3)) (stepH 151 (by decide) (V (Proc.devRef .tc main_arg0)) (V (Proc.devRef .tc main_v3)) (V (Proc.devRef .tc main_arg2)) (V (Proc.devRef .tc main_v3015))) (V (Proc.devRef .tc main_v3023)) := by
  simp only [stepOps151]
  after_results_simp
  first | exact ⟨rfl, rfl⟩ | fail "value"
/-- Step 152 of the loop: operations 3351 … 3372 of the program. -/
abbrev stepOps152 : List (HloOp τ sig (Elt F)) :=
  [ unary main_v3 main_v3044 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3035 main_v3044 main_v3045 (mulf : (⟨S4x256x16, .f32⟩ : BufTy).Contents (Elt F) → (⟨S4x256x16, .f32⟩ : BufTy).Contents (Elt F) → (⟨S4x256x16, .f32⟩ : BufTy).Contents (Elt F)),
    unary main_arg0 main_v3046 ((extractStridedSlice S4x1x256 ![0, 152, 0] · slices_S4x512x256_S4x1x256_0_152_0) : (⟨S4x512x256, .f32⟩ : BufTy).Contents (Elt F) → (⟨S4x1x256, .f32⟩ : BufTy).Contents (Elt F)),
    reshape main_v3046 main_v3047 rfl shapeCasts_S4x1x256_S4x256,
    unary main_v3047 main_v3048 (broadcastInDim S4x256x1 ![0, 1] bcast_S4x256_S4x256x1_0_1 : (⟨S4x256, .f32⟩ : BufTy).Contents (Elt F) → (⟨S4x256x1, .f32⟩ : BufTy).Contents (Elt F)),
    unary main_arg2 main_v3049 ((extractStridedSlice S4x1x16 ![0, 152, 0] · slices_S4x512x16_S4x1x16_0_152_0) : (⟨S4x512x16, .f32⟩ : BufTy).Contents (Elt F) → (⟨S4x1x16, .f32⟩ : BufTy).Contents (Elt F)),
    reshape main_v3049 main_v3050 rfl shapeCasts_S4x1x16_S4x16,
    unary main_v3050 main_v3051 (broadcastInDim S4x1x16 ![0, 2] bcast_S4x16_S4x1x16_0_2 : (⟨S4x16, .f32⟩ : BufTy).Contents (Elt F) → (⟨S4x1x16, .f32⟩ : BufTy).Contents (Elt F)),
    unary main_v3048 main_v3052 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3051 main_v3053 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3052 main_v3053 main_v3054 (mulf : (⟨S4x256x16, .f32⟩ : BufTy).Contents (Elt F) → (⟨S4x256x16, .f32⟩ : BufTy).Contents (Elt F) → (⟨S4x256x16, .f32⟩ : BufTy).Contents (Elt F)),
    binary main_v3045 main_v3054 main_v3055 (addf : (⟨S4x256x16, .f32⟩ : BufTy).Contents (Elt F) → (⟨S4x256x16, .f32⟩ : BufTy).Contents (Elt F) → (⟨S4x256x16, .f32⟩ : BufTy).Contents (Elt F)),
    unary main_arg3 main_v3056 ((extractStridedSlice S4x1x16 ![0, 152, 0] · slices_S4x512x16_S4x1x16_0_152_0) : (⟨S4x512x16, .f32⟩ : BufTy).Contents (Elt F) → (⟨S4x1x16, .f32⟩ : BufTy).Contents (Elt F)),
    reshape main_v3056 main_v3057 rfl shapeCasts_S4x1x16_S4x16,
    unary main_v3057 main_v3058 (broadcastInDim S4x1x16 ![0, 2] bcast_S4x16_S4x1x16_0_2 : (⟨S4x16, .f32⟩ : BufTy).Contents (Elt F) → (⟨S4x1x16, .f32⟩ : BufTy).Contents (Elt F)),
    unary main_v3058 main_v3059 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3055 main_v3059 main_v3060 (mulf : (⟨S4x256x16, .f32⟩ : BufTy).Contents (Elt F) → (⟨S4x256x16, .f32⟩ : BufTy).Contents (Elt F) → (⟨S4x256x16, .f32⟩ : BufTy).Contents (Elt F)),
    nullary main_cst_304 (constant S_ .f32 0x00000000#32),
    binary main_v3060 main_cst_304 main_v3061 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_305 (constantI S_ 32 152#32),
    unary main_c_305 main_v3062 (broadcastInDim S1 ![] bcast_S_S1 : (⟨S_, .i32⟩ : BufTy).Contents (Elt F) → (⟨S1, .i32⟩ : BufTy).Contents (Elt F)),
    ternary main_v3043 main_v3062 main_v3061 main_v3063 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps152_ok : (stepOps152 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step152_val (V : Valuation τ sig (Elt Ideal)) :
    after (stepOps152 (F := Ideal)) V (no_index (Proc.devRef .tc main_v3055)) = stepH 152 (by decide) (V (Proc.devRef .tc main_arg0)) (V (Proc.devRef .tc main_v3)) (V (Proc.devRef .tc main_arg2)) (V (Proc.devRef .tc main_v3035))
    ∧ after (stepOps152 (F := Ideal)) V (no_index (Proc.devRef .tc main_v3063)) = stepY 152 (by decide) (V (Proc.devRef .tc main_arg3)) (stepH 152 (by decide) (V (Proc.devRef .tc main_arg0)) (V (Proc.devRef .tc main_v3)) (V (Proc.devRef .tc main_arg2)) (V (Proc.devRef .tc main_v3035))) (V (Proc.devRef .tc main_v3043)) := by
  simp only [stepOps152]
  after_results_simp
  first | exact ⟨rfl, rfl⟩ | fail "value"
/-- Step 153 of the loop: operations 3373 … 3394 of the program. -/
abbrev stepOps153 : List (HloOp τ sig (Elt F)) :=
  [ unary main_v3 main_v3064 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3055 main_v3064 main_v3065 (mulf : (⟨S4x256x16, .f32⟩ : BufTy).Contents (Elt F) → (⟨S4x256x16, .f32⟩ : BufTy).Contents (Elt F) → (⟨S4x256x16, .f32⟩ : BufTy).Contents (Elt F)),
    unary main_arg0 main_v3066 ((extractStridedSlice S4x1x256 ![0, 153, 0] · slices_S4x512x256_S4x1x256_0_153_0) : (⟨S4x512x256, .f32⟩ : BufTy).Contents (Elt F) → (⟨S4x1x256, .f32⟩ : BufTy).Contents (Elt F)),
    reshape main_v3066 main_v3067 rfl shapeCasts_S4x1x256_S4x256,
    unary main_v3067 main_v3068 (broadcastInDim S4x256x1 ![0, 1] bcast_S4x256_S4x256x1_0_1 : (⟨S4x256, .f32⟩ : BufTy).Contents (Elt F) → (⟨S4x256x1, .f32⟩ : BufTy).Contents (Elt F)),
    unary main_arg2 main_v3069 ((extractStridedSlice S4x1x16 ![0, 153, 0] · slices_S4x512x16_S4x1x16_0_153_0) : (⟨S4x512x16, .f32⟩ : BufTy).Contents (Elt F) → (⟨S4x1x16, .f32⟩ : BufTy).Contents (Elt F)),
    reshape main_v3069 main_v3070 rfl shapeCasts_S4x1x16_S4x16,
    unary main_v3070 main_v3071 (broadcastInDim S4x1x16 ![0, 2] bcast_S4x16_S4x1x16_0_2 : (⟨S4x16, .f32⟩ : BufTy).Contents (Elt F) → (⟨S4x1x16, .f32⟩ : BufTy).Contents (Elt F)),
    unary main_v3068 main_v3072 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3071 main_v3073 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3072 main_v3073 main_v3074 (mulf : (⟨S4x256x16, .f32⟩ : BufTy).Contents (Elt F) → (⟨S4x256x16, .f32⟩ : BufTy).Contents (Elt F) → (⟨S4x256x16, .f32⟩ : BufTy).Contents (Elt F)),
    binary main_v3065 main_v3074 main_v3075 (addf : (⟨S4x256x16, .f32⟩ : BufTy).Contents (Elt F) → (⟨S4x256x16, .f32⟩ : BufTy).Contents (Elt F) → (⟨S4x256x16, .f32⟩ : BufTy).Contents (Elt F)),
    unary main_arg3 main_v3076 ((extractStridedSlice S4x1x16 ![0, 153, 0] · slices_S4x512x16_S4x1x16_0_153_0) : (⟨S4x512x16, .f32⟩ : BufTy).Contents (Elt F) → (⟨S4x1x16, .f32⟩ : BufTy).Contents (Elt F)),
    reshape main_v3076 main_v3077 rfl shapeCasts_S4x1x16_S4x16,
    unary main_v3077 main_v3078 (broadcastInDim S4x1x16 ![0, 2] bcast_S4x16_S4x1x16_0_2 : (⟨S4x16, .f32⟩ : BufTy).Contents (Elt F) → (⟨S4x1x16, .f32⟩ : BufTy).Contents (Elt F)),
    unary main_v3078 main_v3079 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3075 main_v3079 main_v3080 (mulf : (⟨S4x256x16, .f32⟩ : BufTy).Contents (Elt F) → (⟨S4x256x16, .f32⟩ : BufTy).Contents (Elt F) → (⟨S4x256x16, .f32⟩ : BufTy).Contents (Elt F)),
    nullary main_cst_306 (constant S_ .f32 0x00000000#32),
    binary main_v3080 main_cst_306 main_v3081 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_307 (constantI S_ 32 153#32),
    unary main_c_307 main_v3082 (broadcastInDim S1 ![] bcast_S_S1 : (⟨S_, .i32⟩ : BufTy).Contents (Elt F) → (⟨S1, .i32⟩ : BufTy).Contents (Elt F)),
    ternary main_v3063 main_v3082 main_v3081 main_v3083 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps153_ok : (stepOps153 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step153_val (V : Valuation τ sig (Elt Ideal)) :
    after (stepOps153 (F := Ideal)) V (no_index (Proc.devRef .tc main_v3075)) = stepH 153 (by decide) (V (Proc.devRef .tc main_arg0)) (V (Proc.devRef .tc main_v3)) (V (Proc.devRef .tc main_arg2)) (V (Proc.devRef .tc main_v3055))
    ∧ after (stepOps153 (F := Ideal)) V (no_index (Proc.devRef .tc main_v3083)) = stepY 153 (by decide) (V (Proc.devRef .tc main_arg3)) (stepH 153 (by decide) (V (Proc.devRef .tc main_arg0)) (V (Proc.devRef .tc main_v3)) (V (Proc.devRef .tc main_arg2)) (V (Proc.devRef .tc main_v3055))) (V (Proc.devRef .tc main_v3063)) := by
  simp only [stepOps153]
  after_results_simp
  first | exact ⟨rfl, rfl⟩ | fail "value"
/-- Step 154 of the loop: operations 3395 … 3416 of the program. -/
abbrev stepOps154 : List (HloOp τ sig (Elt F)) :=
  [ unary main_v3 main_v3084 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3075 main_v3084 main_v3085 (mulf : (⟨S4x256x16, .f32⟩ : BufTy).Contents (Elt F) → (⟨S4x256x16, .f32⟩ : BufTy).Contents (Elt F) → (⟨S4x256x16, .f32⟩ : BufTy).Contents (Elt F)),
    unary main_arg0 main_v3086 ((extractStridedSlice S4x1x256 ![0, 154, 0] · slices_S4x512x256_S4x1x256_0_154_0) : (⟨S4x512x256, .f32⟩ : BufTy).Contents (Elt F) → (⟨S4x1x256, .f32⟩ : BufTy).Contents (Elt F)),
    reshape main_v3086 main_v3087 rfl shapeCasts_S4x1x256_S4x256,
    unary main_v3087 main_v3088 (broadcastInDim S4x256x1 ![0, 1] bcast_S4x256_S4x256x1_0_1 : (⟨S4x256, .f32⟩ : BufTy).Contents (Elt F) → (⟨S4x256x1, .f32⟩ : BufTy).Contents (Elt F)),
    unary main_arg2 main_v3089 ((extractStridedSlice S4x1x16 ![0, 154, 0] · slices_S4x512x16_S4x1x16_0_154_0) : (⟨S4x512x16, .f32⟩ : BufTy).Contents (Elt F) → (⟨S4x1x16, .f32⟩ : BufTy).Contents (Elt F)),
    reshape main_v3089 main_v3090 rfl shapeCasts_S4x1x16_S4x16,
    unary main_v3090 main_v3091 (broadcastInDim S4x1x16 ![0, 2] bcast_S4x16_S4x1x16_0_2 : (⟨S4x16, .f32⟩ : BufTy).Contents (Elt F) → (⟨S4x1x16, .f32⟩ : BufTy).Contents (Elt F)),
    unary main_v3088 main_v3092 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3091 main_v3093 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3092 main_v3093 main_v3094 (mulf : (⟨S4x256x16, .f32⟩ : BufTy).Contents (Elt F) → (⟨S4x256x16, .f32⟩ : BufTy).Contents (Elt F) → (⟨S4x256x16, .f32⟩ : BufTy).Contents (Elt F)),
    binary main_v3085 main_v3094 main_v3095 (addf : (⟨S4x256x16, .f32⟩ : BufTy).Contents (Elt F) → (⟨S4x256x16, .f32⟩ : BufTy).Contents (Elt F) → (⟨S4x256x16, .f32⟩ : BufTy).Contents (Elt F)),
    unary main_arg3 main_v3096 ((extractStridedSlice S4x1x16 ![0, 154, 0] · slices_S4x512x16_S4x1x16_0_154_0) : (⟨S4x512x16, .f32⟩ : BufTy).Contents (Elt F) → (⟨S4x1x16, .f32⟩ : BufTy).Contents (Elt F)),
    reshape main_v3096 main_v3097 rfl shapeCasts_S4x1x16_S4x16,
    unary main_v3097 main_v3098 (broadcastInDim S4x1x16 ![0, 2] bcast_S4x16_S4x1x16_0_2 : (⟨S4x16, .f32⟩ : BufTy).Contents (Elt F) → (⟨S4x1x16, .f32⟩ : BufTy).Contents (Elt F)),
    unary main_v3098 main_v3099 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3095 main_v3099 main_v3100 (mulf : (⟨S4x256x16, .f32⟩ : BufTy).Contents (Elt F) → (⟨S4x256x16, .f32⟩ : BufTy).Contents (Elt F) → (⟨S4x256x16, .f32⟩ : BufTy).Contents (Elt F)),
    nullary main_cst_308 (constant S_ .f32 0x00000000#32),
    binary main_v3100 main_cst_308 main_v3101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_309 (constantI S_ 32 154#32),
    unary main_c_309 main_v3102 (broadcastInDim S1 ![] bcast_S_S1 : (⟨S_, .i32⟩ : BufTy).Contents (Elt F) → (⟨S1, .i32⟩ : BufTy).Contents (Elt F)),
    ternary main_v3083 main_v3102 main_v3101 main_v3103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps154_ok : (stepOps154 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step154_val (V : Valuation τ sig (Elt Ideal)) :
    after (stepOps154 (F := Ideal)) V (no_index (Proc.devRef .tc main_v3095)) = stepH 154 (by decide) (V (Proc.devRef .tc main_arg0)) (V (Proc.devRef .tc main_v3)) (V (Proc.devRef .tc main_arg2)) (V (Proc.devRef .tc main_v3075))
    ∧ after (stepOps154 (F := Ideal)) V (no_index (Proc.devRef .tc main_v3103)) = stepY 154 (by decide) (V (Proc.devRef .tc main_arg3)) (stepH 154 (by decide) (V (Proc.devRef .tc main_arg0)) (V (Proc.devRef .tc main_v3)) (V (Proc.devRef .tc main_arg2)) (V (Proc.devRef .tc main_v3075))) (V (Proc.devRef .tc main_v3083)) := by
  simp only [stepOps154]
  after_results_simp
  first | exact ⟨rfl, rfl⟩ | fail "value"
/-- Step 155 of the loop: operations 3417 … 3438 of the program. -/
abbrev stepOps155 : List (HloOp τ sig (Elt F)) :=
  [ unary main_v3 main_v3104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3095 main_v3104 main_v3105 (mulf : (⟨S4x256x16, .f32⟩ : BufTy).Contents (Elt F) → (⟨S4x256x16, .f32⟩ : BufTy).Contents (Elt F) → (⟨S4x256x16, .f32⟩ : BufTy).Contents (Elt F)),
    unary main_arg0 main_v3106 ((extractStridedSlice S4x1x256 ![0, 155, 0] · slices_S4x512x256_S4x1x256_0_155_0) : (⟨S4x512x256, .f32⟩ : BufTy).Contents (Elt F) → (⟨S4x1x256, .f32⟩ : BufTy).Contents (Elt F)),
    reshape main_v3106 main_v3107 rfl shapeCasts_S4x1x256_S4x256,
    unary main_v3107 main_v3108 (broadcastInDim S4x256x1 ![0, 1] bcast_S4x256_S4x256x1_0_1 : (⟨S4x256, .f32⟩ : BufTy).Contents (Elt F) → (⟨S4x256x1, .f32⟩ : BufTy).Contents (Elt F)),
    unary main_arg2 main_v3109 ((extractStridedSlice S4x1x16 ![0, 155, 0] · slices_S4x512x16_S4x1x16_0_155_0) : (⟨S4x512x16, .f32⟩ : BufTy).Contents (Elt F) → (⟨S4x1x16, .f32⟩ : BufTy).Contents (Elt F)),
    reshape main_v3109 main_v3110 rfl shapeCasts_S4x1x16_S4x16,
    unary main_v3110 main_v3111 (broadcastInDim S4x1x16 ![0, 2] bcast_S4x16_S4x1x16_0_2 : (⟨S4x16, .f32⟩ : BufTy).Contents (Elt F) → (⟨S4x1x16, .f32⟩ : BufTy).Contents (Elt F)),
    unary main_v3108 main_v3112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3111 main_v3113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3112 main_v3113 main_v3114 (mulf : (⟨S4x256x16, .f32⟩ : BufTy).Contents (Elt F) → (⟨S4x256x16, .f32⟩ : BufTy).Contents (Elt F) → (⟨S4x256x16, .f32⟩ : BufTy).Contents (Elt F)),
    binary main_v3105 main_v3114 main_v3115 (addf : (⟨S4x256x16, .f32⟩ : BufTy).Contents (Elt F) → (⟨S4x256x16, .f32⟩ : BufTy).Contents (Elt F) → (⟨S4x256x16, .f32⟩ : BufTy).Contents (Elt F)),
    unary main_arg3 main_v3116 ((extractStridedSlice S4x1x16 ![0, 155, 0] · slices_S4x512x16_S4x1x16_0_155_0) : (⟨S4x512x16, .f32⟩ : BufTy).Contents (Elt F) → (⟨S4x1x16, .f32⟩ : BufTy).Contents (Elt F)),
    reshape main_v3116 main_v3117 rfl shapeCasts_S4x1x16_S4x16,
    unary main_v3117 main_v3118 (broadcastInDim S4x1x16 ![0, 2] bcast_S4x16_S4x1x16_0_2 : (⟨S4x16, .f32⟩ : BufTy).Contents (Elt F) → (⟨S4x1x16, .f32⟩ : BufTy).Contents (Elt F)),
    unary main_v3118 main_v3119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3115 main_v3119 main_v3120 (mulf : (⟨S4x256x16, .f32⟩ : BufTy).Contents (Elt F) → (⟨S4x256x16, .f32⟩ : BufTy).Contents (Elt F) → (⟨S4x256x16, .f32⟩ : BufTy).Contents (Elt F)),
    nullary main_cst_310 (constant S_ .f32 0x00000000#32),
    binary main_v3120 main_cst_310 main_v3121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_311 (constantI S_ 32 155#32),
    unary main_c_311 main_v3122 (broadcastInDim S1 ![] bcast_S_S1 : (⟨S_, .i32⟩ : BufTy).Contents (Elt F) → (⟨S1, .i32⟩ : BufTy).Contents (Elt F)),
    ternary main_v3103 main_v3122 main_v3121 main_v3123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps155_ok : (stepOps155 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step155_val (V : Valuation τ sig (Elt Ideal)) :
    after (stepOps155 (F := Ideal)) V (no_index (Proc.devRef .tc main_v3115)) = stepH 155 (by decide) (V (Proc.devRef .tc main_arg0)) (V (Proc.devRef .tc main_v3)) (V (Proc.devRef .tc main_arg2)) (V (Proc.devRef .tc main_v3095))
    ∧ after (stepOps155 (F := Ideal)) V (no_index (Proc.devRef .tc main_v3123)) = stepY 155 (by decide) (V (Proc.devRef .tc main_arg3)) (stepH 155 (by decide) (V (Proc.devRef .tc main_arg0)) (V (Proc.devRef .tc main_v3)) (V (Proc.devRef .tc main_arg2)) (V (Proc.devRef .tc main_v3095))) (V (Proc.devRef .tc main_v3103)) := by
  simp only [stepOps155]
  after_results_simp
  first | exact ⟨rfl, rfl⟩ | fail "value"
/-- Step 156 of the loop: operations 3439 … 3460 of the program. -/
abbrev stepOps156 : List (HloOp τ sig (Elt F)) :=
  [ unary main_v3 main_v3124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3115 main_v3124 main_v3125 (mulf : (⟨S4x256x16, .f32⟩ : BufTy).Contents (Elt F) → (⟨S4x256x16, .f32⟩ : BufTy).Contents (Elt F) → (⟨S4x256x16, .f32⟩ : BufTy).Contents (Elt F)),
    unary main_arg0 main_v3126 ((extractStridedSlice S4x1x256 ![0, 156, 0] · slices_S4x512x256_S4x1x256_0_156_0) : (⟨S4x512x256, .f32⟩ : BufTy).Contents (Elt F) → (⟨S4x1x256, .f32⟩ : BufTy).Contents (Elt F)),
    reshape main_v3126 main_v3127 rfl shapeCasts_S4x1x256_S4x256,
    unary main_v3127 main_v3128 (broadcastInDim S4x256x1 ![0, 1] bcast_S4x256_S4x256x1_0_1 : (⟨S4x256, .f32⟩ : BufTy).Contents (Elt F) → (⟨S4x256x1, .f32⟩ : BufTy).Contents (Elt F)),
    unary main_arg2 main_v3129 ((extractStridedSlice S4x1x16 ![0, 156, 0] · slices_S4x512x16_S4x1x16_0_156_0) : (⟨S4x512x16, .f32⟩ : BufTy).Contents (Elt F) → (⟨S4x1x16, .f32⟩ : BufTy).Contents (Elt F)),
    reshape main_v3129 main_v3130 rfl shapeCasts_S4x1x16_S4x16,
    unary main_v3130 main_v3131 (broadcastInDim S4x1x16 ![0, 2] bcast_S4x16_S4x1x16_0_2 : (⟨S4x16, .f32⟩ : BufTy).Contents (Elt F) → (⟨S4x1x16, .f32⟩ : BufTy).Contents (Elt F)),
    unary main_v3128 main_v3132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3131 main_v3133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3132 main_v3133 main_v3134 (mulf : (⟨S4x256x16, .f32⟩ : BufTy).Contents (Elt F) → (⟨S4x256x16, .f32⟩ : BufTy).Contents (Elt F) → (⟨S4x256x16, .f32⟩ : BufTy).Contents (Elt F)),
    binary main_v3125 main_v3134 main_v3135 (addf : (⟨S4x256x16, .f32⟩ : BufTy).Contents (Elt F) → (⟨S4x256x16, .f32⟩ : BufTy).Contents (Elt F) → (⟨S4x256x16, .f32⟩ : BufTy).Contents (Elt F)),
    unary main_arg3 main_v3136 ((extractStridedSlice S4x1x16 ![0, 156, 0] · slices_S4x512x16_S4x1x16_0_156_0) : (⟨S4x512x16, .f32⟩ : BufTy).Contents (Elt F) → (⟨S4x1x16, .f32⟩ : BufTy).Contents (Elt F)),
    reshape main_v3136 main_v3137 rfl shapeCasts_S4x1x16_S4x16,
    unary main_v3137 main_v3138 (broadcastInDim S4x1x16 ![0, 2] bcast_S4x16_S4x1x16_0_2 : (⟨S4x16, .f32⟩ : BufTy).Contents (Elt F) → (⟨S4x1x16, .f32⟩ : BufTy).Contents (Elt F)),
    unary main_v3138 main_v3139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3135 main_v3139 main_v3140 (mulf : (⟨S4x256x16, .f32⟩ : BufTy).Contents (Elt F) → (⟨S4x256x16, .f32⟩ : BufTy).Contents (Elt F) → (⟨S4x256x16, .f32⟩ : BufTy).Contents (Elt F)),
    nullary main_cst_312 (constant S_ .f32 0x00000000#32),
    binary main_v3140 main_cst_312 main_v3141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_313 (constantI S_ 32 156#32),
    unary main_c_313 main_v3142 (broadcastInDim S1 ![] bcast_S_S1 : (⟨S_, .i32⟩ : BufTy).Contents (Elt F) → (⟨S1, .i32⟩ : BufTy).Contents (Elt F)),
    ternary main_v3123 main_v3142 main_v3141 main_v3143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps156_ok : (stepOps156 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step156_val (V : Valuation τ sig (Elt Ideal)) :
    after (stepOps156 (F := Ideal)) V (no_index (Proc.devRef .tc main_v3135)) = stepH 156 (by decide) (V (Proc.devRef .tc main_arg0)) (V (Proc.devRef .tc main_v3)) (V (Proc.devRef .tc main_arg2)) (V (Proc.devRef .tc main_v3115))
    ∧ after (stepOps156 (F := Ideal)) V (no_index (Proc.devRef .tc main_v3143)) = stepY 156 (by decide) (V (Proc.devRef .tc main_arg3)) (stepH 156 (by decide) (V (Proc.devRef .tc main_arg0)) (V (Proc.devRef .tc main_v3)) (V (Proc.devRef .tc main_arg2)) (V (Proc.devRef .tc main_v3115))) (V (Proc.devRef .tc main_v3123)) := by
  simp only [stepOps156]
  after_results_simp
  first | exact ⟨rfl, rfl⟩ | fail "value"
/-- Step 157 of the loop: operations 3461 … 3482 of the program. -/
abbrev stepOps157 : List (HloOp τ sig (Elt F)) :=
  [ unary main_v3 main_v3144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3135 main_v3144 main_v3145 (mulf : (⟨S4x256x16, .f32⟩ : BufTy).Contents (Elt F) → (⟨S4x256x16, .f32⟩ : BufTy).Contents (Elt F) → (⟨S4x256x16, .f32⟩ : BufTy).Contents (Elt F)),
    unary main_arg0 main_v3146 ((extractStridedSlice S4x1x256 ![0, 157, 0] · slices_S4x512x256_S4x1x256_0_157_0) : (⟨S4x512x256, .f32⟩ : BufTy).Contents (Elt F) → (⟨S4x1x256, .f32⟩ : BufTy).Contents (Elt F)),
    reshape main_v3146 main_v3147 rfl shapeCasts_S4x1x256_S4x256,
    unary main_v3147 main_v3148 (broadcastInDim S4x256x1 ![0, 1] bcast_S4x256_S4x256x1_0_1 : (⟨S4x256, .f32⟩ : BufTy).Contents (Elt F) → (⟨S4x256x1, .f32⟩ : BufTy).Contents (Elt F)),
    unary main_arg2 main_v3149 ((extractStridedSlice S4x1x16 ![0, 157, 0] · slices_S4x512x16_S4x1x16_0_157_0) : (⟨S4x512x16, .f32⟩ : BufTy).Contents (Elt F) → (⟨S4x1x16, .f32⟩ : BufTy).Contents (Elt F)),
    reshape main_v3149 main_v3150 rfl shapeCasts_S4x1x16_S4x16,
    unary main_v3150 main_v3151 (broadcastInDim S4x1x16 ![0, 2] bcast_S4x16_S4x1x16_0_2 : (⟨S4x16, .f32⟩ : BufTy).Contents (Elt F) → (⟨S4x1x16, .f32⟩ : BufTy).Contents (Elt F)),
    unary main_v3148 main_v3152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3151 main_v3153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3152 main_v3153 main_v3154 (mulf : (⟨S4x256x16, .f32⟩ : BufTy).Contents (Elt F) → (⟨S4x256x16, .f32⟩ : BufTy).Contents (Elt F) → (⟨S4x256x16, .f32⟩ : BufTy).Contents (Elt F)),
    binary main_v3145 main_v3154 main_v3155 (addf : (⟨S4x256x16, .f32⟩ : BufTy).Contents (Elt F) → (⟨S4x256x16, .f32⟩ : BufTy).Contents (Elt F) → (⟨S4x256x16, .f32⟩ : BufTy).Contents (Elt F)),
    unary main_arg3 main_v3156 ((extractStridedSlice S4x1x16 ![0, 157, 0] · slices_S4x512x16_S4x1x16_0_157_0) : (⟨S4x512x16, .f32⟩ : BufTy).Contents (Elt F) → (⟨S4x1x16, .f32⟩ : BufTy).Contents (Elt F)),
    reshape main_v3156 main_v3157 rfl shapeCasts_S4x1x16_S4x16,
    unary main_v3157 main_v3158 (broadcastInDim S4x1x16 ![0, 2] bcast_S4x16_S4x1x16_0_2 : (⟨S4x16, .f32⟩ : BufTy).Contents (Elt F) → (⟨S4x1x16, .f32⟩ : BufTy).Contents (Elt F)),
    unary main_v3158 main_v3159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3155 main_v3159 main_v3160 (mulf : (⟨S4x256x16, .f32⟩ : BufTy).Contents (Elt F) → (⟨S4x256x16, .f32⟩ : BufTy).Contents (Elt F) → (⟨S4x256x16, .f32⟩ : BufTy).Contents (Elt F)),
    nullary main_cst_314 (constant S_ .f32 0x00000000#32),
    binary main_v3160 main_cst_314 main_v3161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_315 (constantI S_ 32 157#32),
    unary main_c_315 main_v3162 (broadcastInDim S1 ![] bcast_S_S1 : (⟨S_, .i32⟩ : BufTy).Contents (Elt F) → (⟨S1, .i32⟩ : BufTy).Contents (Elt F)),
    ternary main_v3143 main_v3162 main_v3161 main_v3163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps157_ok : (stepOps157 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step157_val (V : Valuation τ sig (Elt Ideal)) :
    after (stepOps157 (F := Ideal)) V (no_index (Proc.devRef .tc main_v3155)) = stepH 157 (by decide) (V (Proc.devRef .tc main_arg0)) (V (Proc.devRef .tc main_v3)) (V (Proc.devRef .tc main_arg2)) (V (Proc.devRef .tc main_v3135))
    ∧ after (stepOps157 (F := Ideal)) V (no_index (Proc.devRef .tc main_v3163)) = stepY 157 (by decide) (V (Proc.devRef .tc main_arg3)) (stepH 157 (by decide) (V (Proc.devRef .tc main_arg0)) (V (Proc.devRef .tc main_v3)) (V (Proc.devRef .tc main_arg2)) (V (Proc.devRef .tc main_v3135))) (V (Proc.devRef .tc main_v3143)) := by
  simp only [stepOps157]
  after_results_simp
  first | exact ⟨rfl, rfl⟩ | fail "value"
/-- Step 158 of the loop: operations 3483 … 3504 of the program. -/
abbrev stepOps158 : List (HloOp τ sig (Elt F)) :=
  [ unary main_v3 main_v3164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3155 main_v3164 main_v3165 (mulf : (⟨S4x256x16, .f32⟩ : BufTy).Contents (Elt F) → (⟨S4x256x16, .f32⟩ : BufTy).Contents (Elt F) → (⟨S4x256x16, .f32⟩ : BufTy).Contents (Elt F)),
    unary main_arg0 main_v3166 ((extractStridedSlice S4x1x256 ![0, 158, 0] · slices_S4x512x256_S4x1x256_0_158_0) : (⟨S4x512x256, .f32⟩ : BufTy).Contents (Elt F) → (⟨S4x1x256, .f32⟩ : BufTy).Contents (Elt F)),
    reshape main_v3166 main_v3167 rfl shapeCasts_S4x1x256_S4x256,
    unary main_v3167 main_v3168 (broadcastInDim S4x256x1 ![0, 1] bcast_S4x256_S4x256x1_0_1 : (⟨S4x256, .f32⟩ : BufTy).Contents (Elt F) → (⟨S4x256x1, .f32⟩ : BufTy).Contents (Elt F)),
    unary main_arg2 main_v3169 ((extractStridedSlice S4x1x16 ![0, 158, 0] · slices_S4x512x16_S4x1x16_0_158_0) : (⟨S4x512x16, .f32⟩ : BufTy).Contents (Elt F) → (⟨S4x1x16, .f32⟩ : BufTy).Contents (Elt F)),
    reshape main_v3169 main_v3170 rfl shapeCasts_S4x1x16_S4x16,
    unary main_v3170 main_v3171 (broadcastInDim S4x1x16 ![0, 2] bcast_S4x16_S4x1x16_0_2 : (⟨S4x16, .f32⟩ : BufTy).Contents (Elt F) → (⟨S4x1x16, .f32⟩ : BufTy).Contents (Elt F)),
    unary main_v3168 main_v3172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3171 main_v3173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3172 main_v3173 main_v3174 (mulf : (⟨S4x256x16, .f32⟩ : BufTy).Contents (Elt F) → (⟨S4x256x16, .f32⟩ : BufTy).Contents (Elt F) → (⟨S4x256x16, .f32⟩ : BufTy).Contents (Elt F)),
    binary main_v3165 main_v3174 main_v3175 (addf : (⟨S4x256x16, .f32⟩ : BufTy).Contents (Elt F) → (⟨S4x256x16, .f32⟩ : BufTy).Contents (Elt F) → (⟨S4x256x16, .f32⟩ : BufTy).Contents (Elt F)),
    unary main_arg3 main_v3176 ((extractStridedSlice S4x1x16 ![0, 158, 0] · slices_S4x512x16_S4x1x16_0_158_0) : (⟨S4x512x16, .f32⟩ : BufTy).Contents (Elt F) → (⟨S4x1x16, .f32⟩ : BufTy).Contents (Elt F)),
    reshape main_v3176 main_v3177 rfl shapeCasts_S4x1x16_S4x16,
    unary main_v3177 main_v3178 (broadcastInDim S4x1x16 ![0, 2] bcast_S4x16_S4x1x16_0_2 : (⟨S4x16, .f32⟩ : BufTy).Contents (Elt F) → (⟨S4x1x16, .f32⟩ : BufTy).Contents (Elt F)),
    unary main_v3178 main_v3179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3175 main_v3179 main_v3180 (mulf : (⟨S4x256x16, .f32⟩ : BufTy).Contents (Elt F) → (⟨S4x256x16, .f32⟩ : BufTy).Contents (Elt F) → (⟨S4x256x16, .f32⟩ : BufTy).Contents (Elt F)),
    nullary main_cst_316 (constant S_ .f32 0x00000000#32),
    binary main_v3180 main_cst_316 main_v3181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_317 (constantI S_ 32 158#32),
    unary main_c_317 main_v3182 (broadcastInDim S1 ![] bcast_S_S1 : (⟨S_, .i32⟩ : BufTy).Contents (Elt F) → (⟨S1, .i32⟩ : BufTy).Contents (Elt F)),
    ternary main_v3163 main_v3182 main_v3181 main_v3183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps158_ok : (stepOps158 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step158_val (V : Valuation τ sig (Elt Ideal)) :
    after (stepOps158 (F := Ideal)) V (no_index (Proc.devRef .tc main_v3175)) = stepH 158 (by decide) (V (Proc.devRef .tc main_arg0)) (V (Proc.devRef .tc main_v3)) (V (Proc.devRef .tc main_arg2)) (V (Proc.devRef .tc main_v3155))
    ∧ after (stepOps158 (F := Ideal)) V (no_index (Proc.devRef .tc main_v3183)) = stepY 158 (by decide) (V (Proc.devRef .tc main_arg3)) (stepH 158 (by decide) (V (Proc.devRef .tc main_arg0)) (V (Proc.devRef .tc main_v3)) (V (Proc.devRef .tc main_arg2)) (V (Proc.devRef .tc main_v3155))) (V (Proc.devRef .tc main_v3163)) := by
  simp only [stepOps158]
  after_results_simp
  first | exact ⟨rfl, rfl⟩ | fail "value"
/-- Step 159 of the loop: operations 3505 … 3526 of the program. -/
abbrev stepOps159 : List (HloOp τ sig (Elt F)) :=
  [ unary main_v3 main_v3184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3175 main_v3184 main_v3185 (mulf : (⟨S4x256x16, .f32⟩ : BufTy).Contents (Elt F) → (⟨S4x256x16, .f32⟩ : BufTy).Contents (Elt F) → (⟨S4x256x16, .f32⟩ : BufTy).Contents (Elt F)),
    unary main_arg0 main_v3186 ((extractStridedSlice S4x1x256 ![0, 159, 0] · slices_S4x512x256_S4x1x256_0_159_0) : (⟨S4x512x256, .f32⟩ : BufTy).Contents (Elt F) → (⟨S4x1x256, .f32⟩ : BufTy).Contents (Elt F)),
    reshape main_v3186 main_v3187 rfl shapeCasts_S4x1x256_S4x256,
    unary main_v3187 main_v3188 (broadcastInDim S4x256x1 ![0, 1] bcast_S4x256_S4x256x1_0_1 : (⟨S4x256, .f32⟩ : BufTy).Contents (Elt F) → (⟨S4x256x1, .f32⟩ : BufTy).Contents (Elt F)),
    unary main_arg2 main_v3189 ((extractStridedSlice S4x1x16 ![0, 159, 0] · slices_S4x512x16_S4x1x16_0_159_0) : (⟨S4x512x16, .f32⟩ : BufTy).Contents (Elt F) → (⟨S4x1x16, .f32⟩ : BufTy).Contents (Elt F)),
    reshape main_v3189 main_v3190 rfl shapeCasts_S4x1x16_S4x16,
    unary main_v3190 main_v3191 (broadcastInDim S4x1x16 ![0, 2] bcast_S4x16_S4x1x16_0_2 : (⟨S4x16, .f32⟩ : BufTy).Contents (Elt F) → (⟨S4x1x16, .f32⟩ : BufTy).Contents (Elt F)),
    unary main_v3188 main_v3192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3191 main_v3193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3192 main_v3193 main_v3194 (mulf : (⟨S4x256x16, .f32⟩ : BufTy).Contents (Elt F) → (⟨S4x256x16, .f32⟩ : BufTy).Contents (Elt F) → (⟨S4x256x16, .f32⟩ : BufTy).Contents (Elt F)),
    binary main_v3185 main_v3194 main_v3195 (addf : (⟨S4x256x16, .f32⟩ : BufTy).Contents (Elt F) → (⟨S4x256x16, .f32⟩ : BufTy).Contents (Elt F) → (⟨S4x256x16, .f32⟩ : BufTy).Contents (Elt F)),
    unary main_arg3 main_v3196 ((extractStridedSlice S4x1x16 ![0, 159, 0] · slices_S4x512x16_S4x1x16_0_159_0) : (⟨S4x512x16, .f32⟩ : BufTy).Contents (Elt F) → (⟨S4x1x16, .f32⟩ : BufTy).Contents (Elt F)),
    reshape main_v3196 main_v3197 rfl shapeCasts_S4x1x16_S4x16,
    unary main_v3197 main_v3198 (broadcastInDim S4x1x16 ![0, 2] bcast_S4x16_S4x1x16_0_2 : (⟨S4x16, .f32⟩ : BufTy).Contents (Elt F) → (⟨S4x1x16, .f32⟩ : BufTy).Contents (Elt F)),
    unary main_v3198 main_v3199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3195 main_v3199 main_v3200 (mulf : (⟨S4x256x16, .f32⟩ : BufTy).Contents (Elt F) → (⟨S4x256x16, .f32⟩ : BufTy).Contents (Elt F) → (⟨S4x256x16, .f32⟩ : BufTy).Contents (Elt F)),
    nullary main_cst_318 (constant S_ .f32 0x00000000#32),
    binary main_v3200 main_cst_318 main_v3201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_319 (constantI S_ 32 159#32),
    unary main_c_319 main_v3202 (broadcastInDim S1 ![] bcast_S_S1 : (⟨S_, .i32⟩ : BufTy).Contents (Elt F) → (⟨S1, .i32⟩ : BufTy).Contents (Elt F)),
    ternary main_v3183 main_v3202 main_v3201 main_v3203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps159_ok : (stepOps159 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step159_val (V : Valuation τ sig (Elt Ideal)) :
    after (stepOps159 (F := Ideal)) V (no_index (Proc.devRef .tc main_v3195)) = stepH 159 (by decide) (V (Proc.devRef .tc main_arg0)) (V (Proc.devRef .tc main_v3)) (V (Proc.devRef .tc main_arg2)) (V (Proc.devRef .tc main_v3175))
    ∧ after (stepOps159 (F := Ideal)) V (no_index (Proc.devRef .tc main_v3203)) = stepY 159 (by decide) (V (Proc.devRef .tc main_arg3)) (stepH 159 (by decide) (V (Proc.devRef .tc main_arg0)) (V (Proc.devRef .tc main_v3)) (V (Proc.devRef .tc main_arg2)) (V (Proc.devRef .tc main_v3175))) (V (Proc.devRef .tc main_v3183)) := by
  simp only [stepOps159]
  after_results_simp
  first | exact ⟨rfl, rfl⟩ | fail "value"

end Cert.ReferenceIdeal.RefRun

end
-- ==== Proof.RefTableStep10.lean ====
/-
  Steps 160 … 175 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 160 of the loop: operations 3527 … 3548 of the program. -/
abbrev stepOps160 : List (HloOp τ sig (Elt F)) :=
  [ unary main_v3 main_v3204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3195 main_v3204 main_v3205 (mulf : (⟨S4x256x16, .f32⟩ : BufTy).Contents (Elt F) → (⟨S4x256x16, .f32⟩ : BufTy).Contents (Elt F) → (⟨S4x256x16, .f32⟩ : BufTy).Contents (Elt F)),
    unary main_arg0 main_v3206 ((extractStridedSlice S4x1x256 ![0, 160, 0] · slices_S4x512x256_S4x1x256_0_160_0) : (⟨S4x512x256, .f32⟩ : BufTy).Contents (Elt F) → (⟨S4x1x256, .f32⟩ : BufTy).Contents (Elt F)),
    reshape main_v3206 main_v3207 rfl shapeCasts_S4x1x256_S4x256,
    unary main_v3207 main_v3208 (broadcastInDim S4x256x1 ![0, 1] bcast_S4x256_S4x256x1_0_1 : (⟨S4x256, .f32⟩ : BufTy).Contents (Elt F) → (⟨S4x256x1, .f32⟩ : BufTy).Contents (Elt F)),
    unary main_arg2 main_v3209 ((extractStridedSlice S4x1x16 ![0, 160, 0] · slices_S4x512x16_S4x1x16_0_160_0) : (⟨S4x512x16, .f32⟩ : BufTy).Contents (Elt F) → (⟨S4x1x16, .f32⟩ : BufTy).Contents (Elt F)),
    reshape main_v3209 main_v3210 rfl shapeCasts_S4x1x16_S4x16,
    unary main_v3210 main_v3211 (broadcastInDim S4x1x16 ![0, 2] bcast_S4x16_S4x1x16_0_2 : (⟨S4x16, .f32⟩ : BufTy).Contents (Elt F) → (⟨S4x1x16, .f32⟩ : BufTy).Contents (Elt F)),
    unary main_v3208 main_v3212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3211 main_v3213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3212 main_v3213 main_v3214 (mulf : (⟨S4x256x16, .f32⟩ : BufTy).Contents (Elt F) → (⟨S4x256x16, .f32⟩ : BufTy).Contents (Elt F) → (⟨S4x256x16, .f32⟩ : BufTy).Contents (Elt F)),
    binary main_v3205 main_v3214 main_v3215 (addf : (⟨S4x256x16, .f32⟩ : BufTy).Contents (Elt F) → (⟨S4x256x16, .f32⟩ : BufTy).Contents (Elt F) → (⟨S4x256x16, .f32⟩ : BufTy).Contents (Elt F)),
    unary main_arg3 main_v3216 ((extractStridedSlice S4x1x16 ![0, 160, 0] · slices_S4x512x16_S4x1x16_0_160_0) : (⟨S4x512x16, .f32⟩ : BufTy).Contents (Elt F) → (⟨S4x1x16, .f32⟩ : BufTy).Contents (Elt F)),
    reshape main_v3216 main_v3217 rfl shapeCasts_S4x1x16_S4x16,
    unary main_v3217 main_v3218 (broadcastInDim S4x1x16 ![0, 2] bcast_S4x16_S4x1x16_0_2 : (⟨S4x16, .f32⟩ : BufTy).Contents (Elt F) → (⟨S4x1x16, .f32⟩ : BufTy).Contents (Elt F)),
    unary main_v3218 main_v3219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3215 main_v3219 main_v3220 (mulf : (⟨S4x256x16, .f32⟩ : BufTy).Contents (Elt F) → (⟨S4x256x16, .f32⟩ : BufTy).Contents (Elt F) → (⟨S4x256x16, .f32⟩ : BufTy).Contents (Elt F)),
    nullary main_cst_320 (constant S_ .f32 0x00000000#32),
    binary main_v3220 main_cst_320 main_v3221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_321 (constantI S_ 32 160#32),
    unary main_c_321 main_v3222 (broadcastInDim S1 ![] bcast_S_S1 : (⟨S_, .i32⟩ : BufTy).Contents (Elt F) → (⟨S1, .i32⟩ : BufTy).Contents (Elt F)),
    ternary main_v3203 main_v3222 main_v3221 main_v3223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps160_ok : (stepOps160 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step160_val (V : Valuation τ sig (Elt Ideal)) :
    after (stepOps160 (F := Ideal)) V (no_index (Proc.devRef .tc main_v3215)) = stepH 160 (by decide) (V (Proc.devRef .tc main_arg0)) (V (Proc.devRef .tc main_v3)) (V (Proc.devRef .tc main_arg2)) (V (Proc.devRef .tc main_v3195))
    ∧ after (stepOps160 (F := Ideal)) V (no_index (Proc.devRef .tc main_v3223)) = stepY 160 (by decide) (V (Proc.devRef .tc main_arg3)) (stepH 160 (by decide) (V (Proc.devRef .tc main_arg0)) (V (Proc.devRef .tc main_v3)) (V (Proc.devRef .tc main_arg2)) (V (Proc.devRef .tc main_v3195))) (V (Proc.devRef .tc main_v3203)) := by
  simp only [stepOps160]
  after_results_simp
  first | exact ⟨rfl, rfl⟩ | fail "value"
/-- Step 161 of the loop: operations 3549 … 3570 of the program. -/
abbrev stepOps161 : List (HloOp τ sig (Elt F)) :=
  [ unary main_v3 main_v3224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3215 main_v3224 main_v3225 (mulf : (⟨S4x256x16, .f32⟩ : BufTy).Contents (Elt F) → (⟨S4x256x16, .f32⟩ : BufTy).Contents (Elt F) → (⟨S4x256x16, .f32⟩ : BufTy).Contents (Elt F)),
    unary main_arg0 main_v3226 ((extractStridedSlice S4x1x256 ![0, 161, 0] · slices_S4x512x256_S4x1x256_0_161_0) : (⟨S4x512x256, .f32⟩ : BufTy).Contents (Elt F) → (⟨S4x1x256, .f32⟩ : BufTy).Contents (Elt F)),
    reshape main_v3226 main_v3227 rfl shapeCasts_S4x1x256_S4x256,
    unary main_v3227 main_v3228 (broadcastInDim S4x256x1 ![0, 1] bcast_S4x256_S4x256x1_0_1 : (⟨S4x256, .f32⟩ : BufTy).Contents (Elt F) → (⟨S4x256x1, .f32⟩ : BufTy).Contents (Elt F)),
    unary main_arg2 main_v3229 ((extractStridedSlice S4x1x16 ![0, 161, 0] · slices_S4x512x16_S4x1x16_0_161_0) : (⟨S4x512x16, .f32⟩ : BufTy).Contents (Elt F) → (⟨S4x1x16, .f32⟩ : BufTy).Contents (Elt F)),
    reshape main_v3229 main_v3230 rfl shapeCasts_S4x1x16_S4x16,
    unary main_v3230 main_v3231 (broadcastInDim S4x1x16 ![0, 2] bcast_S4x16_S4x1x16_0_2 : (⟨S4x16, .f32⟩ : BufTy).Contents (Elt F) → (⟨S4x1x16, .f32⟩ : BufTy).Contents (Elt F)),
    unary main_v3228 main_v3232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3231 main_v3233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3232 main_v3233 main_v3234 (mulf : (⟨S4x256x16, .f32⟩ : BufTy).Contents (Elt F) → (⟨S4x256x16, .f32⟩ : BufTy).Contents (Elt F) → (⟨S4x256x16, .f32⟩ : BufTy).Contents (Elt F)),
    binary main_v3225 main_v3234 main_v3235 (addf : (⟨S4x256x16, .f32⟩ : BufTy).Contents (Elt F) → (⟨S4x256x16, .f32⟩ : BufTy).Contents (Elt F) → (⟨S4x256x16, .f32⟩ : BufTy).Contents (Elt F)),
    unary main_arg3 main_v3236 ((extractStridedSlice S4x1x16 ![0, 161, 0] · slices_S4x512x16_S4x1x16_0_161_0) : (⟨S4x512x16, .f32⟩ : BufTy).Contents (Elt F) → (⟨S4x1x16, .f32⟩ : BufTy).Contents (Elt F)),
    reshape main_v3236 main_v3237 rfl shapeCasts_S4x1x16_S4x16,
    unary main_v3237 main_v3238 (broadcastInDim S4x1x16 ![0, 2] bcast_S4x16_S4x1x16_0_2 : (⟨S4x16, .f32⟩ : BufTy).Contents (Elt F) → (⟨S4x1x16, .f32⟩ : BufTy).Contents (Elt F)),
    unary main_v3238 main_v3239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3235 main_v3239 main_v3240 (mulf : (⟨S4x256x16, .f32⟩ : BufTy).Contents (Elt F) → (⟨S4x256x16, .f32⟩ : BufTy).Contents (Elt F) → (⟨S4x256x16, .f32⟩ : BufTy).Contents (Elt F)),
    nullary main_cst_322 (constant S_ .f32 0x00000000#32),
    binary main_v3240 main_cst_322 main_v3241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_323 (constantI S_ 32 161#32),
    unary main_c_323 main_v3242 (broadcastInDim S1 ![] bcast_S_S1 : (⟨S_, .i32⟩ : BufTy).Contents (Elt F) → (⟨S1, .i32⟩ : BufTy).Contents (Elt F)),
    ternary main_v3223 main_v3242 main_v3241 main_v3243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps161_ok : (stepOps161 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step161_val (V : Valuation τ sig (Elt Ideal)) :
    after (stepOps161 (F := Ideal)) V (no_index (Proc.devRef .tc main_v3235)) = stepH 161 (by decide) (V (Proc.devRef .tc main_arg0)) (V (Proc.devRef .tc main_v3)) (V (Proc.devRef .tc main_arg2)) (V (Proc.devRef .tc main_v3215))
    ∧ after (stepOps161 (F := Ideal)) V (no_index (Proc.devRef .tc main_v3243)) = stepY 161 (by decide) (V (Proc.devRef .tc main_arg3)) (stepH 161 (by decide) (V (Proc.devRef .tc main_arg0)) (V (Proc.devRef .tc main_v3)) (V (Proc.devRef .tc main_arg2)) (V (Proc.devRef .tc main_v3215))) (V (Proc.devRef .tc main_v3223)) := by
  simp only [stepOps161]
  after_results_simp
  first | exact ⟨rfl, rfl⟩ | fail "value"
/-- Step 162 of the loop: operations 3571 … 3592 of the program. -/
abbrev stepOps162 : List (HloOp τ sig (Elt F)) :=
  [ unary main_v3 main_v3244 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3235 main_v3244 main_v3245 (mulf : (⟨S4x256x16, .f32⟩ : BufTy).Contents (Elt F) → (⟨S4x256x16, .f32⟩ : BufTy).Contents (Elt F) → (⟨S4x256x16, .f32⟩ : BufTy).Contents (Elt F)),
    unary main_arg0 main_v3246 ((extractStridedSlice S4x1x256 ![0, 162, 0] · slices_S4x512x256_S4x1x256_0_162_0) : (⟨S4x512x256, .f32⟩ : BufTy).Contents (Elt F) → (⟨S4x1x256, .f32⟩ : BufTy).Contents (Elt F)),
    reshape main_v3246 main_v3247 rfl shapeCasts_S4x1x256_S4x256,
    unary main_v3247 main_v3248 (broadcastInDim S4x256x1 ![0, 1] bcast_S4x256_S4x256x1_0_1 : (⟨S4x256, .f32⟩ : BufTy).Contents (Elt F) → (⟨S4x256x1, .f32⟩ : BufTy).Contents (Elt F)),
    unary main_arg2 main_v3249 ((extractStridedSlice S4x1x16 ![0, 162, 0] · slices_S4x512x16_S4x1x16_0_162_0) : (⟨S4x512x16, .f32⟩ : BufTy).Contents (Elt F) → (⟨S4x1x16, .f32⟩ : BufTy).Contents (Elt F)),
    reshape main_v3249 main_v3250 rfl shapeCasts_S4x1x16_S4x16,
    unary main_v3250 main_v3251 (broadcastInDim S4x1x16 ![0, 2] bcast_S4x16_S4x1x16_0_2 : (⟨S4x16, .f32⟩ : BufTy).Contents (Elt F) → (⟨S4x1x16, .f32⟩ : BufTy).Contents (Elt F)),
    unary main_v3248 main_v3252 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3251 main_v3253 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3252 main_v3253 main_v3254 (mulf : (⟨S4x256x16, .f32⟩ : BufTy).Contents (Elt F) → (⟨S4x256x16, .f32⟩ : BufTy).Contents (Elt F) → (⟨S4x256x16, .f32⟩ : BufTy).Contents (Elt F)),
    binary main_v3245 main_v3254 main_v3255 (addf : (⟨S4x256x16, .f32⟩ : BufTy).Contents (Elt F) → (⟨S4x256x16, .f32⟩ : BufTy).Contents (Elt F) → (⟨S4x256x16, .f32⟩ : BufTy).Contents (Elt F)),
    unary main_arg3 main_v3256 ((extractStridedSlice S4x1x16 ![0, 162, 0] · slices_S4x512x16_S4x1x16_0_162_0) : (⟨S4x512x16, .f32⟩ : BufTy).Contents (Elt F) → (⟨S4x1x16, .f32⟩ : BufTy).Contents (Elt F)),
    reshape main_v3256 main_v3257 rfl shapeCasts_S4x1x16_S4x16,
    unary main_v3257 main_v3258 (broadcastInDim S4x1x16 ![0, 2] bcast_S4x16_S4x1x16_0_2 : (⟨S4x16, .f32⟩ : BufTy).Contents (Elt F) → (⟨S4x1x16, .f32⟩ : BufTy).Contents (Elt F)),
    unary main_v3258 main_v3259 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3255 main_v3259 main_v3260 (mulf : (⟨S4x256x16, .f32⟩ : BufTy).Contents (Elt F) → (⟨S4x256x16, .f32⟩ : BufTy).Contents (Elt F) → (⟨S4x256x16, .f32⟩ : BufTy).Contents (Elt F)),
    nullary main_cst_324 (constant S_ .f32 0x00000000#32),
    binary main_v3260 main_cst_324 main_v3261 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_325 (constantI S_ 32 162#32),
    unary main_c_325 main_v3262 (broadcastInDim S1 ![] bcast_S_S1 : (⟨S_, .i32⟩ : BufTy).Contents (Elt F) → (⟨S1, .i32⟩ : BufTy).Contents (Elt F)),
    ternary main_v3243 main_v3262 main_v3261 main_v3263 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps162_ok : (stepOps162 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step162_val (V : Valuation τ sig (Elt Ideal)) :
    after (stepOps162 (F := Ideal)) V (no_index (Proc.devRef .tc main_v3255)) = stepH 162 (by decide) (V (Proc.devRef .tc main_arg0)) (V (Proc.devRef .tc main_v3)) (V (Proc.devRef .tc main_arg2)) (V (Proc.devRef .tc main_v3235))
    ∧ after (stepOps162 (F := Ideal)) V (no_index (Proc.devRef .tc main_v3263)) = stepY 162 (by decide) (V (Proc.devRef .tc main_arg3)) (stepH 162 (by decide) (V (Proc.devRef .tc main_arg0)) (V (Proc.devRef .tc main_v3)) (V (Proc.devRef .tc main_arg2)) (V (Proc.devRef .tc main_v3235))) (V (Proc.devRef .tc main_v3243)) := by
  simp only [stepOps162]
  after_results_simp
  first | exact ⟨rfl, rfl⟩ | fail "value"
/-- Step 163 of the loop: operations 3593 … 3614 of the program. -/
abbrev stepOps163 : List (HloOp τ sig (Elt F)) :=
  [ unary main_v3 main_v3264 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3255 main_v3264 main_v3265 (mulf : (⟨S4x256x16, .f32⟩ : BufTy).Contents (Elt F) → (⟨S4x256x16, .f32⟩ : BufTy).Contents (Elt F) → (⟨S4x256x16, .f32⟩ : BufTy).Contents (Elt F)),
    unary main_arg0 main_v3266 ((extractStridedSlice S4x1x256 ![0, 163, 0] · slices_S4x512x256_S4x1x256_0_163_0) : (⟨S4x512x256, .f32⟩ : BufTy).Contents (Elt F) → (⟨S4x1x256, .f32⟩ : BufTy).Contents (Elt F)),
    reshape main_v3266 main_v3267 rfl shapeCasts_S4x1x256_S4x256,
    unary main_v3267 main_v3268 (broadcastInDim S4x256x1 ![0, 1] bcast_S4x256_S4x256x1_0_1 : (⟨S4x256, .f32⟩ : BufTy).Contents (Elt F) → (⟨S4x256x1, .f32⟩ : BufTy).Contents (Elt F)),
    unary main_arg2 main_v3269 ((extractStridedSlice S4x1x16 ![0, 163, 0] · slices_S4x512x16_S4x1x16_0_163_0) : (⟨S4x512x16, .f32⟩ : BufTy).Contents (Elt F) → (⟨S4x1x16, .f32⟩ : BufTy).Contents (Elt F)),
    reshape main_v3269 main_v3270 rfl shapeCasts_S4x1x16_S4x16,
    unary main_v3270 main_v3271 (broadcastInDim S4x1x16 ![0, 2] bcast_S4x16_S4x1x16_0_2 : (⟨S4x16, .f32⟩ : BufTy).Contents (Elt F) → (⟨S4x1x16, .f32⟩ : BufTy).Contents (Elt F)),
    unary main_v3268 main_v3272 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3271 main_v3273 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3272 main_v3273 main_v3274 (mulf : (⟨S4x256x16, .f32⟩ : BufTy).Contents (Elt F) → (⟨S4x256x16, .f32⟩ : BufTy).Contents (Elt F) → (⟨S4x256x16, .f32⟩ : BufTy).Contents (Elt F)),
    binary main_v3265 main_v3274 main_v3275 (addf : (⟨S4x256x16, .f32⟩ : BufTy).Contents (Elt F) → (⟨S4x256x16, .f32⟩ : BufTy).Contents (Elt F) → (⟨S4x256x16, .f32⟩ : BufTy).Contents (Elt F)),
    unary main_arg3 main_v3276 ((extractStridedSlice S4x1x16 ![0, 163, 0] · slices_S4x512x16_S4x1x16_0_163_0) : (⟨S4x512x16, .f32⟩ : BufTy).Contents (Elt F) → (⟨S4x1x16, .f32⟩ : BufTy).Contents (Elt F)),
    reshape main_v3276 main_v3277 rfl shapeCasts_S4x1x16_S4x16,
    unary main_v3277 main_v3278 (broadcastInDim S4x1x16 ![0, 2] bcast_S4x16_S4x1x16_0_2 : (⟨S4x16, .f32⟩ : BufTy).Contents (Elt F) → (⟨S4x1x16, .f32⟩ : BufTy).Contents (Elt F)),
    unary main_v3278 main_v3279 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3275 main_v3279 main_v3280 (mulf : (⟨S4x256x16, .f32⟩ : BufTy).Contents (Elt F) → (⟨S4x256x16, .f32⟩ : BufTy).Contents (Elt F) → (⟨S4x256x16, .f32⟩ : BufTy).Contents (Elt F)),
    nullary main_cst_326 (constant S_ .f32 0x00000000#32),
    binary main_v3280 main_cst_326 main_v3281 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_327 (constantI S_ 32 163#32),
    unary main_c_327 main_v3282 (broadcastInDim S1 ![] bcast_S_S1 : (⟨S_, .i32⟩ : BufTy).Contents (Elt F) → (⟨S1, .i32⟩ : BufTy).Contents (Elt F)),
    ternary main_v3263 main_v3282 main_v3281 main_v3283 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps163_ok : (stepOps163 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step163_val (V : Valuation τ sig (Elt Ideal)) :
    after (stepOps163 (F := Ideal)) V (no_index (Proc.devRef .tc main_v3275)) = stepH 163 (by decide) (V (Proc.devRef .tc main_arg0)) (V (Proc.devRef .tc main_v3)) (V (Proc.devRef .tc main_arg2)) (V (Proc.devRef .tc main_v3255))
    ∧ after (stepOps163 (F := Ideal)) V (no_index (Proc.devRef .tc main_v3283)) = stepY 163 (by decide) (V (Proc.devRef .tc main_arg3)) (stepH 163 (by decide) (V (Proc.devRef .tc main_arg0)) (V (Proc.devRef .tc main_v3)) (V (Proc.devRef .tc main_arg2)) (V (Proc.devRef .tc main_v3255))) (V (Proc.devRef .tc main_v3263)) := by
  simp only [stepOps163]
  after_results_simp
  first | exact ⟨rfl, rfl⟩ | fail "value"
/-- Step 164 of the loop: operations 3615 … 3636 of the program. -/
abbrev stepOps164 : List (HloOp τ sig (Elt F)) :=
  [ unary main_v3 main_v3284 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3275 main_v3284 main_v3285 (mulf : (⟨S4x256x16, .f32⟩ : BufTy).Contents (Elt F) → (⟨S4x256x16, .f32⟩ : BufTy).Contents (Elt F) → (⟨S4x256x16, .f32⟩ : BufTy).Contents (Elt F)),
    unary main_arg0 main_v3286 ((extractStridedSlice S4x1x256 ![0, 164, 0] · slices_S4x512x256_S4x1x256_0_164_0) : (⟨S4x512x256, .f32⟩ : BufTy).Contents (Elt F) → (⟨S4x1x256, .f32⟩ : BufTy).Contents (Elt F)),
    reshape main_v3286 main_v3287 rfl shapeCasts_S4x1x256_S4x256,
    unary main_v3287 main_v3288 (broadcastInDim S4x256x1 ![0, 1] bcast_S4x256_S4x256x1_0_1 : (⟨S4x256, .f32⟩ : BufTy).Contents (Elt F) → (⟨S4x256x1, .f32⟩ : BufTy).Contents (Elt F)),
    unary main_arg2 main_v3289 ((extractStridedSlice S4x1x16 ![0, 164, 0] · slices_S4x512x16_S4x1x16_0_164_0) : (⟨S4x512x16, .f32⟩ : BufTy).Contents (Elt F) → (⟨S4x1x16, .f32⟩ : BufTy).Contents (Elt F)),
    reshape main_v3289 main_v3290 rfl shapeCasts_S4x1x16_S4x16,
    unary main_v3290 main_v3291 (broadcastInDim S4x1x16 ![0, 2] bcast_S4x16_S4x1x16_0_2 : (⟨S4x16, .f32⟩ : BufTy).Contents (Elt F) → (⟨S4x1x16, .f32⟩ : BufTy).Contents (Elt F)),
    unary main_v3288 main_v3292 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3291 main_v3293 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3292 main_v3293 main_v3294 (mulf : (⟨S4x256x16, .f32⟩ : BufTy).Contents (Elt F) → (⟨S4x256x16, .f32⟩ : BufTy).Contents (Elt F) → (⟨S4x256x16, .f32⟩ : BufTy).Contents (Elt F)),
    binary main_v3285 main_v3294 main_v3295 (addf : (⟨S4x256x16, .f32⟩ : BufTy).Contents (Elt F) → (⟨S4x256x16, .f32⟩ : BufTy).Contents (Elt F) → (⟨S4x256x16, .f32⟩ : BufTy).Contents (Elt F)),
    unary main_arg3 main_v3296 ((extractStridedSlice S4x1x16 ![0, 164, 0] · slices_S4x512x16_S4x1x16_0_164_0) : (⟨S4x512x16, .f32⟩ : BufTy).Contents (Elt F) → (⟨S4x1x16, .f32⟩ : BufTy).Contents (Elt F)),
    reshape main_v3296 main_v3297 rfl shapeCasts_S4x1x16_S4x16,
    unary main_v3297 main_v3298 (broadcastInDim S4x1x16 ![0, 2] bcast_S4x16_S4x1x16_0_2 : (⟨S4x16, .f32⟩ : BufTy).Contents (Elt F) → (⟨S4x1x16, .f32⟩ : BufTy).Contents (Elt F)),
    unary main_v3298 main_v3299 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3295 main_v3299 main_v3300 (mulf : (⟨S4x256x16, .f32⟩ : BufTy).Contents (Elt F) → (⟨S4x256x16, .f32⟩ : BufTy).Contents (Elt F) → (⟨S4x256x16, .f32⟩ : BufTy).Contents (Elt F)),
    nullary main_cst_328 (constant S_ .f32 0x00000000#32),
    binary main_v3300 main_cst_328 main_v3301 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_329 (constantI S_ 32 164#32),
    unary main_c_329 main_v3302 (broadcastInDim S1 ![] bcast_S_S1 : (⟨S_, .i32⟩ : BufTy).Contents (Elt F) → (⟨S1, .i32⟩ : BufTy).Contents (Elt F)),
    ternary main_v3283 main_v3302 main_v3301 main_v3303 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps164_ok : (stepOps164 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step164_val (V : Valuation τ sig (Elt Ideal)) :
    after (stepOps164 (F := Ideal)) V (no_index (Proc.devRef .tc main_v3295)) = stepH 164 (by decide) (V (Proc.devRef .tc main_arg0)) (V (Proc.devRef .tc main_v3)) (V (Proc.devRef .tc main_arg2)) (V (Proc.devRef .tc main_v3275))
    ∧ after (stepOps164 (F := Ideal)) V (no_index (Proc.devRef .tc main_v3303)) = stepY 164 (by decide) (V (Proc.devRef .tc main_arg3)) (stepH 164 (by decide) (V (Proc.devRef .tc main_arg0)) (V (Proc.devRef .tc main_v3)) (V (Proc.devRef .tc main_arg2)) (V (Proc.devRef .tc main_v3275))) (V (Proc.devRef .tc main_v3283)) := by
  simp only [stepOps164]
  after_results_simp
  first | exact ⟨rfl, rfl⟩ | fail "value"
/-- Step 165 of the loop: operations 3637 … 3658 of the program. -/
abbrev stepOps165 : List (HloOp τ sig (Elt F)) :=
  [ unary main_v3 main_v3304 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3295 main_v3304 main_v3305 (mulf : (⟨S4x256x16, .f32⟩ : BufTy).Contents (Elt F) → (⟨S4x256x16, .f32⟩ : BufTy).Contents (Elt F) → (⟨S4x256x16, .f32⟩ : BufTy).Contents (Elt F)),
    unary main_arg0 main_v3306 ((extractStridedSlice S4x1x256 ![0, 165, 0] · slices_S4x512x256_S4x1x256_0_165_0) : (⟨S4x512x256, .f32⟩ : BufTy).Contents (Elt F) → (⟨S4x1x256, .f32⟩ : BufTy).Contents (Elt F)),
    reshape main_v3306 main_v3307 rfl shapeCasts_S4x1x256_S4x256,
    unary main_v3307 main_v3308 (broadcastInDim S4x256x1 ![0, 1] bcast_S4x256_S4x256x1_0_1 : (⟨S4x256, .f32⟩ : BufTy).Contents (Elt F) → (⟨S4x256x1, .f32⟩ : BufTy).Contents (Elt F)),
    unary main_arg2 main_v3309 ((extractStridedSlice S4x1x16 ![0, 165, 0] · slices_S4x512x16_S4x1x16_0_165_0) : (⟨S4x512x16, .f32⟩ : BufTy).Contents (Elt F) → (⟨S4x1x16, .f32⟩ : BufTy).Contents (Elt F)),
    reshape main_v3309 main_v3310 rfl shapeCasts_S4x1x16_S4x16,
    unary main_v3310 main_v3311 (broadcastInDim S4x1x16 ![0, 2] bcast_S4x16_S4x1x16_0_2 : (⟨S4x16, .f32⟩ : BufTy).Contents (Elt F) → (⟨S4x1x16, .f32⟩ : BufTy).Contents (Elt F)),
    unary main_v3308 main_v3312 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3311 main_v3313 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3312 main_v3313 main_v3314 (mulf : (⟨S4x256x16, .f32⟩ : BufTy).Contents (Elt F) → (⟨S4x256x16, .f32⟩ : BufTy).Contents (Elt F) → (⟨S4x256x16, .f32⟩ : BufTy).Contents (Elt F)),
    binary main_v3305 main_v3314 main_v3315 (addf : (⟨S4x256x16, .f32⟩ : BufTy).Contents (Elt F) → (⟨S4x256x16, .f32⟩ : BufTy).Contents (Elt F) → (⟨S4x256x16, .f32⟩ : BufTy).Contents (Elt F)),
    unary main_arg3 main_v3316 ((extractStridedSlice S4x1x16 ![0, 165, 0] · slices_S4x512x16_S4x1x16_0_165_0) : (⟨S4x512x16, .f32⟩ : BufTy).Contents (Elt F) → (⟨S4x1x16, .f32⟩ : BufTy).Contents (Elt F)),
    reshape main_v3316 main_v3317 rfl shapeCasts_S4x1x16_S4x16,
    unary main_v3317 main_v3318 (broadcastInDim S4x1x16 ![0, 2] bcast_S4x16_S4x1x16_0_2 : (⟨S4x16, .f32⟩ : BufTy).Contents (Elt F) → (⟨S4x1x16, .f32⟩ : BufTy).Contents (Elt F)),
    unary main_v3318 main_v3319 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3315 main_v3319 main_v3320 (mulf : (⟨S4x256x16, .f32⟩ : BufTy).Contents (Elt F) → (⟨S4x256x16, .f32⟩ : BufTy).Contents (Elt F) → (⟨S4x256x16, .f32⟩ : BufTy).Contents (Elt F)),
    nullary main_cst_330 (constant S_ .f32 0x00000000#32),
    binary main_v3320 main_cst_330 main_v3321 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_331 (constantI S_ 32 165#32),
    unary main_c_331 main_v3322 (broadcastInDim S1 ![] bcast_S_S1 : (⟨S_, .i32⟩ : BufTy).Contents (Elt F) → (⟨S1, .i32⟩ : BufTy).Contents (Elt F)),
    ternary main_v3303 main_v3322 main_v3321 main_v3323 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps165_ok : (stepOps165 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step165_val (V : Valuation τ sig (Elt Ideal)) :
    after (stepOps165 (F := Ideal)) V (no_index (Proc.devRef .tc main_v3315)) = stepH 165 (by decide) (V (Proc.devRef .tc main_arg0)) (V (Proc.devRef .tc main_v3)) (V (Proc.devRef .tc main_arg2)) (V (Proc.devRef .tc main_v3295))
    ∧ after (stepOps165 (F := Ideal)) V (no_index (Proc.devRef .tc main_v3323)) = stepY 165 (by decide) (V (Proc.devRef .tc main_arg3)) (stepH 165 (by decide) (V (Proc.devRef .tc main_arg0)) (V (Proc.devRef .tc main_v3)) (V (Proc.devRef .tc main_arg2)) (V (Proc.devRef .tc main_v3295))) (V (Proc.devRef .tc main_v3303)) := by
  simp only [stepOps165]
  after_results_simp
  first | exact ⟨rfl, rfl⟩ | fail "value"
/-- Step 166 of the loop: operations 3659 … 3680 of the program. -/
abbrev stepOps166 : List (HloOp τ sig (Elt F)) :=
  [ unary main_v3 main_v3324 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3315 main_v3324 main_v3325 (mulf : (⟨S4x256x16, .f32⟩ : BufTy).Contents (Elt F) → (⟨S4x256x16, .f32⟩ : BufTy).Contents (Elt F) → (⟨S4x256x16, .f32⟩ : BufTy).Contents (Elt F)),
    unary main_arg0 main_v3326 ((extractStridedSlice S4x1x256 ![0, 166, 0] · slices_S4x512x256_S4x1x256_0_166_0) : (⟨S4x512x256, .f32⟩ : BufTy).Contents (Elt F) → (⟨S4x1x256, .f32⟩ : BufTy).Contents (Elt F)),
    reshape main_v3326 main_v3327 rfl shapeCasts_S4x1x256_S4x256,
    unary main_v3327 main_v3328 (broadcastInDim S4x256x1 ![0, 1] bcast_S4x256_S4x256x1_0_1 : (⟨S4x256, .f32⟩ : BufTy).Contents (Elt F) → (⟨S4x256x1, .f32⟩ : BufTy).Contents (Elt F)),
    unary main_arg2 main_v3329 ((extractStridedSlice S4x1x16 ![0, 166, 0] · slices_S4x512x16_S4x1x16_0_166_0) : (⟨S4x512x16, .f32⟩ : BufTy).Contents (Elt F) → (⟨S4x1x16, .f32⟩ : BufTy).Contents (Elt F)),
    reshape main_v3329 main_v3330 rfl shapeCasts_S4x1x16_S4x16,
    unary main_v3330 main_v3331 (broadcastInDim S4x1x16 ![0, 2] bcast_S4x16_S4x1x16_0_2 : (⟨S4x16, .f32⟩ : BufTy).Contents (Elt F) → (⟨S4x1x16, .f32⟩ : BufTy).Contents (Elt F)),
    unary main_v3328 main_v3332 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3331 main_v3333 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3332 main_v3333 main_v3334 (mulf : (⟨S4x256x16, .f32⟩ : BufTy).Contents (Elt F) → (⟨S4x256x16, .f32⟩ : BufTy).Contents (Elt F) → (⟨S4x256x16, .f32⟩ : BufTy).Contents (Elt F)),
    binary main_v3325 main_v3334 main_v3335 (addf : (⟨S4x256x16, .f32⟩ : BufTy).Contents (Elt F) → (⟨S4x256x16, .f32⟩ : BufTy).Contents (Elt F) → (⟨S4x256x16, .f32⟩ : BufTy).Contents (Elt F)),
    unary main_arg3 main_v3336 ((extractStridedSlice S4x1x16 ![0, 166, 0] · slices_S4x512x16_S4x1x16_0_166_0) : (⟨S4x512x16, .f32⟩ : BufTy).Contents (Elt F) → (⟨S4x1x16, .f32⟩ : BufTy).Contents (Elt F)),
    reshape main_v3336 main_v3337 rfl shapeCasts_S4x1x16_S4x16,
    unary main_v3337 main_v3338 (broadcastInDim S4x1x16 ![0, 2] bcast_S4x16_S4x1x16_0_2 : (⟨S4x16, .f32⟩ : BufTy).Contents (Elt F) → (⟨S4x1x16, .f32⟩ : BufTy).Contents (Elt F)),
    unary main_v3338 main_v3339 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3335 main_v3339 main_v3340 (mulf : (⟨S4x256x16, .f32⟩ : BufTy).Contents (Elt F) → (⟨S4x256x16, .f32⟩ : BufTy).Contents (Elt F) → (⟨S4x256x16, .f32⟩ : BufTy).Contents (Elt F)),
    nullary main_cst_332 (constant S_ .f32 0x00000000#32),
    binary main_v3340 main_cst_332 main_v3341 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_333 (constantI S_ 32 166#32),
    unary main_c_333 main_v3342 (broadcastInDim S1 ![] bcast_S_S1 : (⟨S_, .i32⟩ : BufTy).Contents (Elt F) → (⟨S1, .i32⟩ : BufTy).Contents (Elt F)),
    ternary main_v3323 main_v3342 main_v3341 main_v3343 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps166_ok : (stepOps166 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step166_val (V : Valuation τ sig (Elt Ideal)) :
    after (stepOps166 (F := Ideal)) V (no_index (Proc.devRef .tc main_v3335)) = stepH 166 (by decide) (V (Proc.devRef .tc main_arg0)) (V (Proc.devRef .tc main_v3)) (V (Proc.devRef .tc main_arg2)) (V (Proc.devRef .tc main_v3315))
    ∧ after (stepOps166 (F := Ideal)) V (no_index (Proc.devRef .tc main_v3343)) = stepY 166 (by decide) (V (Proc.devRef .tc main_arg3)) (stepH 166 (by decide) (V (Proc.devRef .tc main_arg0)) (V (Proc.devRef .tc main_v3)) (V (Proc.devRef .tc main_arg2)) (V (Proc.devRef .tc main_v3315))) (V (Proc.devRef .tc main_v3323)) := by
  simp only [stepOps166]
  after_results_simp
  first | exact ⟨rfl, rfl⟩ | fail "value"
/-- Step 167 of the loop: operations 3681 … 3702 of the program. -/
abbrev stepOps167 : List (HloOp τ sig (Elt F)) :=
  [ unary main_v3 main_v3344 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3335 main_v3344 main_v3345 (mulf : (⟨S4x256x16, .f32⟩ : BufTy).Contents (Elt F) → (⟨S4x256x16, .f32⟩ : BufTy).Contents (Elt F) → (⟨S4x256x16, .f32⟩ : BufTy).Contents (Elt F)),
    unary main_arg0 main_v3346 ((extractStridedSlice S4x1x256 ![0, 167, 0] · slices_S4x512x256_S4x1x256_0_167_0) : (⟨S4x512x256, .f32⟩ : BufTy).Contents (Elt F) → (⟨S4x1x256, .f32⟩ : BufTy).Contents (Elt F)),
    reshape main_v3346 main_v3347 rfl shapeCasts_S4x1x256_S4x256,
    unary main_v3347 main_v3348 (broadcastInDim S4x256x1 ![0, 1] bcast_S4x256_S4x256x1_0_1 : (⟨S4x256, .f32⟩ : BufTy).Contents (Elt F) → (⟨S4x256x1, .f32⟩ : BufTy).Contents (Elt F)),
    unary main_arg2 main_v3349 ((extractStridedSlice S4x1x16 ![0, 167, 0] · slices_S4x512x16_S4x1x16_0_167_0) : (⟨S4x512x16, .f32⟩ : BufTy).Contents (Elt F) → (⟨S4x1x16, .f32⟩ : BufTy).Contents (Elt F)),
    reshape main_v3349 main_v3350 rfl shapeCasts_S4x1x16_S4x16,
    unary main_v3350 main_v3351 (broadcastInDim S4x1x16 ![0, 2] bcast_S4x16_S4x1x16_0_2 : (⟨S4x16, .f32⟩ : BufTy).Contents (Elt F) → (⟨S4x1x16, .f32⟩ : BufTy).Contents (Elt F)),
    unary main_v3348 main_v3352 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3351 main_v3353 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3352 main_v3353 main_v3354 (mulf : (⟨S4x256x16, .f32⟩ : BufTy).Contents (Elt F) → (⟨S4x256x16, .f32⟩ : BufTy).Contents (Elt F) → (⟨S4x256x16, .f32⟩ : BufTy).Contents (Elt F)),
    binary main_v3345 main_v3354 main_v3355 (addf : (⟨S4x256x16, .f32⟩ : BufTy).Contents (Elt F) → (⟨S4x256x16, .f32⟩ : BufTy).Contents (Elt F) → (⟨S4x256x16, .f32⟩ : BufTy).Contents (Elt F)),
    unary main_arg3 main_v3356 ((extractStridedSlice S4x1x16 ![0, 167, 0] · slices_S4x512x16_S4x1x16_0_167_0) : (⟨S4x512x16, .f32⟩ : BufTy).Contents (Elt F) → (⟨S4x1x16, .f32⟩ : BufTy).Contents (Elt F)),
    reshape main_v3356 main_v3357 rfl shapeCasts_S4x1x16_S4x16,
    unary main_v3357 main_v3358 (broadcastInDim S4x1x16 ![0, 2] bcast_S4x16_S4x1x16_0_2 : (⟨S4x16, .f32⟩ : BufTy).Contents (Elt F) → (⟨S4x1x16, .f32⟩ : BufTy).Contents (Elt F)),
    unary main_v3358 main_v3359 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3355 main_v3359 main_v3360 (mulf : (⟨S4x256x16, .f32⟩ : BufTy).Contents (Elt F) → (⟨S4x256x16, .f32⟩ : BufTy).Contents (Elt F) → (⟨S4x256x16, .f32⟩ : BufTy).Contents (Elt F)),
    nullary main_cst_334 (constant S_ .f32 0x00000000#32),
    binary main_v3360 main_cst_334 main_v3361 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_335 (constantI S_ 32 167#32),
    unary main_c_335 main_v3362 (broadcastInDim S1 ![] bcast_S_S1 : (⟨S_, .i32⟩ : BufTy).Contents (Elt F) → (⟨S1, .i32⟩ : BufTy).Contents (Elt F)),
    ternary main_v3343 main_v3362 main_v3361 main_v3363 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps167_ok : (stepOps167 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step167_val (V : Valuation τ sig (Elt Ideal)) :
    after (stepOps167 (F := Ideal)) V (no_index (Proc.devRef .tc main_v3355)) = stepH 167 (by decide) (V (Proc.devRef .tc main_arg0)) (V (Proc.devRef .tc main_v3)) (V (Proc.devRef .tc main_arg2)) (V (Proc.devRef .tc main_v3335))
    ∧ after (stepOps167 (F := Ideal)) V (no_index (Proc.devRef .tc main_v3363)) = stepY 167 (by decide) (V (Proc.devRef .tc main_arg3)) (stepH 167 (by decide) (V (Proc.devRef .tc main_arg0)) (V (Proc.devRef .tc main_v3)) (V (Proc.devRef .tc main_arg2)) (V (Proc.devRef .tc main_v3335))) (V (Proc.devRef .tc main_v3343)) := by
  simp only [stepOps167]
  after_results_simp
  first | exact ⟨rfl, rfl⟩ | fail "value"
/-- Step 168 of the loop: operations 3703 … 3724 of the program. -/
abbrev stepOps168 : List (HloOp τ sig (Elt F)) :=
  [ unary main_v3 main_v3364 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3355 main_v3364 main_v3365 (mulf : (⟨S4x256x16, .f32⟩ : BufTy).Contents (Elt F) → (⟨S4x256x16, .f32⟩ : BufTy).Contents (Elt F) → (⟨S4x256x16, .f32⟩ : BufTy).Contents (Elt F)),
    unary main_arg0 main_v3366 ((extractStridedSlice S4x1x256 ![0, 168, 0] · slices_S4x512x256_S4x1x256_0_168_0) : (⟨S4x512x256, .f32⟩ : BufTy).Contents (Elt F) → (⟨S4x1x256, .f32⟩ : BufTy).Contents (Elt F)),
    reshape main_v3366 main_v3367 rfl shapeCasts_S4x1x256_S4x256,
    unary main_v3367 main_v3368 (broadcastInDim S4x256x1 ![0, 1] bcast_S4x256_S4x256x1_0_1 : (⟨S4x256, .f32⟩ : BufTy).Contents (Elt F) → (⟨S4x256x1, .f32⟩ : BufTy).Contents (Elt F)),
    unary main_arg2 main_v3369 ((extractStridedSlice S4x1x16 ![0, 168, 0] · slices_S4x512x16_S4x1x16_0_168_0) : (⟨S4x512x16, .f32⟩ : BufTy).Contents (Elt F) → (⟨S4x1x16, .f32⟩ : BufTy).Contents (Elt F)),
    reshape main_v3369 main_v3370 rfl shapeCasts_S4x1x16_S4x16,
    unary main_v3370 main_v3371 (broadcastInDim S4x1x16 ![0, 2] bcast_S4x16_S4x1x16_0_2 : (⟨S4x16, .f32⟩ : BufTy).Contents (Elt F) → (⟨S4x1x16, .f32⟩ : BufTy).Contents (Elt F)),
    unary main_v3368 main_v3372 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3371 main_v3373 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3372 main_v3373 main_v3374 (mulf : (⟨S4x256x16, .f32⟩ : BufTy).Contents (Elt F) → (⟨S4x256x16, .f32⟩ : BufTy).Contents (Elt F) → (⟨S4x256x16, .f32⟩ : BufTy).Contents (Elt F)),
    binary main_v3365 main_v3374 main_v3375 (addf : (⟨S4x256x16, .f32⟩ : BufTy).Contents (Elt F) → (⟨S4x256x16, .f32⟩ : BufTy).Contents (Elt F) → (⟨S4x256x16, .f32⟩ : BufTy).Contents (Elt F)),
    unary main_arg3 main_v3376 ((extractStridedSlice S4x1x16 ![0, 168, 0] · slices_S4x512x16_S4x1x16_0_168_0) : (⟨S4x512x16, .f32⟩ : BufTy).Contents (Elt F) → (⟨S4x1x16, .f32⟩ : BufTy).Contents (Elt F)),
    reshape main_v3376 main_v3377 rfl shapeCasts_S4x1x16_S4x16,
    unary main_v3377 main_v3378 (broadcastInDim S4x1x16 ![0, 2] bcast_S4x16_S4x1x16_0_2 : (⟨S4x16, .f32⟩ : BufTy).Contents (Elt F) → (⟨S4x1x16, .f32⟩ : BufTy).Contents (Elt F)),
    unary main_v3378 main_v3379 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3375 main_v3379 main_v3380 (mulf : (⟨S4x256x16, .f32⟩ : BufTy).Contents (Elt F) → (⟨S4x256x16, .f32⟩ : BufTy).Contents (Elt F) → (⟨S4x256x16, .f32⟩ : BufTy).Contents (Elt F)),
    nullary main_cst_336 (constant S_ .f32 0x00000000#32),
    binary main_v3380 main_cst_336 main_v3381 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_337 (constantI S_ 32 168#32),
    unary main_c_337 main_v3382 (broadcastInDim S1 ![] bcast_S_S1 : (⟨S_, .i32⟩ : BufTy).Contents (Elt F) → (⟨S1, .i32⟩ : BufTy).Contents (Elt F)),
    ternary main_v3363 main_v3382 main_v3381 main_v3383 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps168_ok : (stepOps168 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step168_val (V : Valuation τ sig (Elt Ideal)) :
    after (stepOps168 (F := Ideal)) V (no_index (Proc.devRef .tc main_v3375)) = stepH 168 (by decide) (V (Proc.devRef .tc main_arg0)) (V (Proc.devRef .tc main_v3)) (V (Proc.devRef .tc main_arg2)) (V (Proc.devRef .tc main_v3355))
    ∧ after (stepOps168 (F := Ideal)) V (no_index (Proc.devRef .tc main_v3383)) = stepY 168 (by decide) (V (Proc.devRef .tc main_arg3)) (stepH 168 (by decide) (V (Proc.devRef .tc main_arg0)) (V (Proc.devRef .tc main_v3)) (V (Proc.devRef .tc main_arg2)) (V (Proc.devRef .tc main_v3355))) (V (Proc.devRef .tc main_v3363)) := by
  simp only [stepOps168]
  after_results_simp
  first | exact ⟨rfl, rfl⟩ | fail "value"
/-- Step 169 of the loop: operations 3725 … 3746 of the program. -/
abbrev stepOps169 : List (HloOp τ sig (Elt F)) :=
  [ unary main_v3 main_v3384 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3375 main_v3384 main_v3385 (mulf : (⟨S4x256x16, .f32⟩ : BufTy).Contents (Elt F) → (⟨S4x256x16, .f32⟩ : BufTy).Contents (Elt F) → (⟨S4x256x16, .f32⟩ : BufTy).Contents (Elt F)),
    unary main_arg0 main_v3386 ((extractStridedSlice S4x1x256 ![0, 169, 0] · slices_S4x512x256_S4x1x256_0_169_0) : (⟨S4x512x256, .f32⟩ : BufTy).Contents (Elt F) → (⟨S4x1x256, .f32⟩ : BufTy).Contents (Elt F)),
    reshape main_v3386 main_v3387 rfl shapeCasts_S4x1x256_S4x256,
    unary main_v3387 main_v3388 (broadcastInDim S4x256x1 ![0, 1] bcast_S4x256_S4x256x1_0_1 : (⟨S4x256, .f32⟩ : BufTy).Contents (Elt F) → (⟨S4x256x1, .f32⟩ : BufTy).Contents (Elt F)),
    unary main_arg2 main_v3389 ((extractStridedSlice S4x1x16 ![0, 169, 0] · slices_S4x512x16_S4x1x16_0_169_0) : (⟨S4x512x16, .f32⟩ : BufTy).Contents (Elt F) → (⟨S4x1x16, .f32⟩ : BufTy).Contents (Elt F)),
    reshape main_v3389 main_v3390 rfl shapeCasts_S4x1x16_S4x16,
    unary main_v3390 main_v3391 (broadcastInDim S4x1x16 ![0, 2] bcast_S4x16_S4x1x16_0_2 : (⟨S4x16, .f32⟩ : BufTy).Contents (Elt F) → (⟨S4x1x16, .f32⟩ : BufTy).Contents (Elt F)),
    unary main_v3388 main_v3392 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3391 main_v3393 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3392 main_v3393 main_v3394 (mulf : (⟨S4x256x16, .f32⟩ : BufTy).Contents (Elt F) → (⟨S4x256x16, .f32⟩ : BufTy).Contents (Elt F) → (⟨S4x256x16, .f32⟩ : BufTy).Contents (Elt F)),
    binary main_v3385 main_v3394 main_v3395 (addf : (⟨S4x256x16, .f32⟩ : BufTy).Contents (Elt F) → (⟨S4x256x16, .f32⟩ : BufTy).Contents (Elt F) → (⟨S4x256x16, .f32⟩ : BufTy).Contents (Elt F)),
    unary main_arg3 main_v3396 ((extractStridedSlice S4x1x16 ![0, 169, 0] · slices_S4x512x16_S4x1x16_0_169_0) : (⟨S4x512x16, .f32⟩ : BufTy).Contents (Elt F) → (⟨S4x1x16, .f32⟩ : BufTy).Contents (Elt F)),
    reshape main_v3396 main_v3397 rfl shapeCasts_S4x1x16_S4x16,
    unary main_v3397 main_v3398 (broadcastInDim S4x1x16 ![0, 2] bcast_S4x16_S4x1x16_0_2 : (⟨S4x16, .f32⟩ : BufTy).Contents (Elt F) → (⟨S4x1x16, .f32⟩ : BufTy).Contents (Elt F)),
    unary main_v3398 main_v3399 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3395 main_v3399 main_v3400 (mulf : (⟨S4x256x16, .f32⟩ : BufTy).Contents (Elt F) → (⟨S4x256x16, .f32⟩ : BufTy).Contents (Elt F) → (⟨S4x256x16, .f32⟩ : BufTy).Contents (Elt F)),
    nullary main_cst_338 (constant S_ .f32 0x00000000#32),
    binary main_v3400 main_cst_338 main_v3401 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_339 (constantI S_ 32 169#32),
    unary main_c_339 main_v3402 (broadcastInDim S1 ![] bcast_S_S1 : (⟨S_, .i32⟩ : BufTy).Contents (Elt F) → (⟨S1, .i32⟩ : BufTy).Contents (Elt F)),
    ternary main_v3383 main_v3402 main_v3401 main_v3403 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps169_ok : (stepOps169 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step169_val (V : Valuation τ sig (Elt Ideal)) :
    after (stepOps169 (F := Ideal)) V (no_index (Proc.devRef .tc main_v3395)) = stepH 169 (by decide) (V (Proc.devRef .tc main_arg0)) (V (Proc.devRef .tc main_v3)) (V (Proc.devRef .tc main_arg2)) (V (Proc.devRef .tc main_v3375))
    ∧ after (stepOps169 (F := Ideal)) V (no_index (Proc.devRef .tc main_v3403)) = stepY 169 (by decide) (V (Proc.devRef .tc main_arg3)) (stepH 169 (by decide) (V (Proc.devRef .tc main_arg0)) (V (Proc.devRef .tc main_v3)) (V (Proc.devRef .tc main_arg2)) (V (Proc.devRef .tc main_v3375))) (V (Proc.devRef .tc main_v3383)) := by
  simp only [stepOps169]
  after_results_simp
  first | exact ⟨rfl, rfl⟩ | fail "value"
/-- Step 170 of the loop: operations 3747 … 3768 of the program. -/
abbrev stepOps170 : List (HloOp τ sig (Elt F)) :=
  [ unary main_v3 main_v3404 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3395 main_v3404 main_v3405 (mulf : (⟨S4x256x16, .f32⟩ : BufTy).Contents (Elt F) → (⟨S4x256x16, .f32⟩ : BufTy).Contents (Elt F) → (⟨S4x256x16, .f32⟩ : BufTy).Contents (Elt F)),
    unary main_arg0 main_v3406 ((extractStridedSlice S4x1x256 ![0, 170, 0] · slices_S4x512x256_S4x1x256_0_170_0) : (⟨S4x512x256, .f32⟩ : BufTy).Contents (Elt F) → (⟨S4x1x256, .f32⟩ : BufTy).Contents (Elt F)),
    reshape main_v3406 main_v3407 rfl shapeCasts_S4x1x256_S4x256,
    unary main_v3407 main_v3408 (broadcastInDim S4x256x1 ![0, 1] bcast_S4x256_S4x256x1_0_1 : (⟨S4x256, .f32⟩ : BufTy).Contents (Elt F) → (⟨S4x256x1, .f32⟩ : BufTy).Contents (Elt F)),
    unary main_arg2 main_v3409 ((extractStridedSlice S4x1x16 ![0, 170, 0] · slices_S4x512x16_S4x1x16_0_170_0) : (⟨S4x512x16, .f32⟩ : BufTy).Contents (Elt F) → (⟨S4x1x16, .f32⟩ : BufTy).Contents (Elt F)),
    reshape main_v3409 main_v3410 rfl shapeCasts_S4x1x16_S4x16,
    unary main_v3410 main_v3411 (broadcastInDim S4x1x16 ![0, 2] bcast_S4x16_S4x1x16_0_2 : (⟨S4x16, .f32⟩ : BufTy).Contents (Elt F) → (⟨S4x1x16, .f32⟩ : BufTy).Contents (Elt F)),
    unary main_v3408 main_v3412 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3411 main_v3413 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3412 main_v3413 main_v3414 (mulf : (⟨S4x256x16, .f32⟩ : BufTy).Contents (Elt F) → (⟨S4x256x16, .f32⟩ : BufTy).Contents (Elt F) → (⟨S4x256x16, .f32⟩ : BufTy).Contents (Elt F)),
    binary main_v3405 main_v3414 main_v3415 (addf : (⟨S4x256x16, .f32⟩ : BufTy).Contents (Elt F) → (⟨S4x256x16, .f32⟩ : BufTy).Contents (Elt F) → (⟨S4x256x16, .f32⟩ : BufTy).Contents (Elt F)),
    unary main_arg3 main_v3416 ((extractStridedSlice S4x1x16 ![0, 170, 0] · slices_S4x512x16_S4x1x16_0_170_0) : (⟨S4x512x16, .f32⟩ : BufTy).Contents (Elt F) → (⟨S4x1x16, .f32⟩ : BufTy).Contents (Elt F)),
    reshape main_v3416 main_v3417 rfl shapeCasts_S4x1x16_S4x16,
    unary main_v3417 main_v3418 (broadcastInDim S4x1x16 ![0, 2] bcast_S4x16_S4x1x16_0_2 : (⟨S4x16, .f32⟩ : BufTy).Contents (Elt F) → (⟨S4x1x16, .f32⟩ : BufTy).Contents (Elt F)),
    unary main_v3418 main_v3419 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3415 main_v3419 main_v3420 (mulf : (⟨S4x256x16, .f32⟩ : BufTy).Contents (Elt F) → (⟨S4x256x16, .f32⟩ : BufTy).Contents (Elt F) → (⟨S4x256x16, .f32⟩ : BufTy).Contents (Elt F)),
    nullary main_cst_340 (constant S_ .f32 0x00000000#32),
    binary main_v3420 main_cst_340 main_v3421 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_341 (constantI S_ 32 170#32),
    unary main_c_341 main_v3422 (broadcastInDim S1 ![] bcast_S_S1 : (⟨S_, .i32⟩ : BufTy).Contents (Elt F) → (⟨S1, .i32⟩ : BufTy).Contents (Elt F)),
    ternary main_v3403 main_v3422 main_v3421 main_v3423 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps170_ok : (stepOps170 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step170_val (V : Valuation τ sig (Elt Ideal)) :
    after (stepOps170 (F := Ideal)) V (no_index (Proc.devRef .tc main_v3415)) = stepH 170 (by decide) (V (Proc.devRef .tc main_arg0)) (V (Proc.devRef .tc main_v3)) (V (Proc.devRef .tc main_arg2)) (V (Proc.devRef .tc main_v3395))
    ∧ after (stepOps170 (F := Ideal)) V (no_index (Proc.devRef .tc main_v3423)) = stepY 170 (by decide) (V (Proc.devRef .tc main_arg3)) (stepH 170 (by decide) (V (Proc.devRef .tc main_arg0)) (V (Proc.devRef .tc main_v3)) (V (Proc.devRef .tc main_arg2)) (V (Proc.devRef .tc main_v3395))) (V (Proc.devRef .tc main_v3403)) := by
  simp only [stepOps170]
  after_results_simp
  first | exact ⟨rfl, rfl⟩ | fail "value"
/-- Step 171 of the loop: operations 3769 … 3790 of the program. -/
abbrev stepOps171 : List (HloOp τ sig (Elt F)) :=
  [ unary main_v3 main_v3424 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3415 main_v3424 main_v3425 (mulf : (⟨S4x256x16, .f32⟩ : BufTy).Contents (Elt F) → (⟨S4x256x16, .f32⟩ : BufTy).Contents (Elt F) → (⟨S4x256x16, .f32⟩ : BufTy).Contents (Elt F)),
    unary main_arg0 main_v3426 ((extractStridedSlice S4x1x256 ![0, 171, 0] · slices_S4x512x256_S4x1x256_0_171_0) : (⟨S4x512x256, .f32⟩ : BufTy).Contents (Elt F) → (⟨S4x1x256, .f32⟩ : BufTy).Contents (Elt F)),
    reshape main_v3426 main_v3427 rfl shapeCasts_S4x1x256_S4x256,
    unary main_v3427 main_v3428 (broadcastInDim S4x256x1 ![0, 1] bcast_S4x256_S4x256x1_0_1 : (⟨S4x256, .f32⟩ : BufTy).Contents (Elt F) → (⟨S4x256x1, .f32⟩ : BufTy).Contents (Elt F)),
    unary main_arg2 main_v3429 ((extractStridedSlice S4x1x16 ![0, 171, 0] · slices_S4x512x16_S4x1x16_0_171_0) : (⟨S4x512x16, .f32⟩ : BufTy).Contents (Elt F) → (⟨S4x1x16, .f32⟩ : BufTy).Contents (Elt F)),
    reshape main_v3429 main_v3430 rfl shapeCasts_S4x1x16_S4x16,
    unary main_v3430 main_v3431 (broadcastInDim S4x1x16 ![0, 2] bcast_S4x16_S4x1x16_0_2 : (⟨S4x16, .f32⟩ : BufTy).Contents (Elt F) → (⟨S4x1x16, .f32⟩ : BufTy).Contents (Elt F)),
    unary main_v3428 main_v3432 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3431 main_v3433 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3432 main_v3433 main_v3434 (mulf : (⟨S4x256x16, .f32⟩ : BufTy).Contents (Elt F) → (⟨S4x256x16, .f32⟩ : BufTy).Contents (Elt F) → (⟨S4x256x16, .f32⟩ : BufTy).Contents (Elt F)),
    binary main_v3425 main_v3434 main_v3435 (addf : (⟨S4x256x16, .f32⟩ : BufTy).Contents (Elt F) → (⟨S4x256x16, .f32⟩ : BufTy).Contents (Elt F) → (⟨S4x256x16, .f32⟩ : BufTy).Contents (Elt F)),
    unary main_arg3 main_v3436 ((extractStridedSlice S4x1x16 ![0, 171, 0] · slices_S4x512x16_S4x1x16_0_171_0) : (⟨S4x512x16, .f32⟩ : BufTy).Contents (Elt F) → (⟨S4x1x16, .f32⟩ : BufTy).Contents (Elt F)),
    reshape main_v3436 main_v3437 rfl shapeCasts_S4x1x16_S4x16,
    unary main_v3437 main_v3438 (broadcastInDim S4x1x16 ![0, 2] bcast_S4x16_S4x1x16_0_2 : (⟨S4x16, .f32⟩ : BufTy).Contents (Elt F) → (⟨S4x1x16, .f32⟩ : BufTy).Contents (Elt F)),
    unary main_v3438 main_v3439 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3435 main_v3439 main_v3440 (mulf : (⟨S4x256x16, .f32⟩ : BufTy).Contents (Elt F) → (⟨S4x256x16, .f32⟩ : BufTy).Contents (Elt F) → (⟨S4x256x16, .f32⟩ : BufTy).Contents (Elt F)),
    nullary main_cst_342 (constant S_ .f32 0x00000000#32),
    binary main_v3440 main_cst_342 main_v3441 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_343 (constantI S_ 32 171#32),
    unary main_c_343 main_v3442 (broadcastInDim S1 ![] bcast_S_S1 : (⟨S_, .i32⟩ : BufTy).Contents (Elt F) → (⟨S1, .i32⟩ : BufTy).Contents (Elt F)),
    ternary main_v3423 main_v3442 main_v3441 main_v3443 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps171_ok : (stepOps171 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step171_val (V : Valuation τ sig (Elt Ideal)) :
    after (stepOps171 (F := Ideal)) V (no_index (Proc.devRef .tc main_v3435)) = stepH 171 (by decide) (V (Proc.devRef .tc main_arg0)) (V (Proc.devRef .tc main_v3)) (V (Proc.devRef .tc main_arg2)) (V (Proc.devRef .tc main_v3415))
    ∧ after (stepOps171 (F := Ideal)) V (no_index (Proc.devRef .tc main_v3443)) = stepY 171 (by decide) (V (Proc.devRef .tc main_arg3)) (stepH 171 (by decide) (V (Proc.devRef .tc main_arg0)) (V (Proc.devRef .tc main_v3)) (V (Proc.devRef .tc main_arg2)) (V (Proc.devRef .tc main_v3415))) (V (Proc.devRef .tc main_v3423)) := by
  simp only [stepOps171]
  after_results_simp
  first | exact ⟨rfl, rfl⟩ | fail "value"
/-- Step 172 of the loop: operations 3791 … 3812 of the program. -/
abbrev stepOps172 : List (HloOp τ sig (Elt F)) :=
  [ unary main_v3 main_v3444 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3435 main_v3444 main_v3445 (mulf : (⟨S4x256x16, .f32⟩ : BufTy).Contents (Elt F) → (⟨S4x256x16, .f32⟩ : BufTy).Contents (Elt F) → (⟨S4x256x16, .f32⟩ : BufTy).Contents (Elt F)),
    unary main_arg0 main_v3446 ((extractStridedSlice S4x1x256 ![0, 172, 0] · slices_S4x512x256_S4x1x256_0_172_0) : (⟨S4x512x256, .f32⟩ : BufTy).Contents (Elt F) → (⟨S4x1x256, .f32⟩ : BufTy).Contents (Elt F)),
    reshape main_v3446 main_v3447 rfl shapeCasts_S4x1x256_S4x256,
    unary main_v3447 main_v3448 (broadcastInDim S4x256x1 ![0, 1] bcast_S4x256_S4x256x1_0_1 : (⟨S4x256, .f32⟩ : BufTy).Contents (Elt F) → (⟨S4x256x1, .f32⟩ : BufTy).Contents (Elt F)),
    unary main_arg2 main_v3449 ((extractStridedSlice S4x1x16 ![0, 172, 0] · slices_S4x512x16_S4x1x16_0_172_0) : (⟨S4x512x16, .f32⟩ : BufTy).Contents (Elt F) → (⟨S4x1x16, .f32⟩ : BufTy).Contents (Elt F)),
    reshape main_v3449 main_v3450 rfl shapeCasts_S4x1x16_S4x16,
    unary main_v3450 main_v3451 (broadcastInDim S4x1x16 ![0, 2] bcast_S4x16_S4x1x16_0_2 : (⟨S4x16, .f32⟩ : BufTy).Contents (Elt F) → (⟨S4x1x16, .f32⟩ : BufTy).Contents (Elt F)),
    unary main_v3448 main_v3452 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3451 main_v3453 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3452 main_v3453 main_v3454 (mulf : (⟨S4x256x16, .f32⟩ : BufTy).Contents (Elt F) → (⟨S4x256x16, .f32⟩ : BufTy).Contents (Elt F) → (⟨S4x256x16, .f32⟩ : BufTy).Contents (Elt F)),
    binary main_v3445 main_v3454 main_v3455 (addf : (⟨S4x256x16, .f32⟩ : BufTy).Contents (Elt F) → (⟨S4x256x16, .f32⟩ : BufTy).Contents (Elt F) → (⟨S4x256x16, .f32⟩ : BufTy).Contents (Elt F)),
    unary main_arg3 main_v3456 ((extractStridedSlice S4x1x16 ![0, 172, 0] · slices_S4x512x16_S4x1x16_0_172_0) : (⟨S4x512x16, .f32⟩ : BufTy).Contents (Elt F) → (⟨S4x1x16, .f32⟩ : BufTy).Contents (Elt F)),
    reshape main_v3456 main_v3457 rfl shapeCasts_S4x1x16_S4x16,
    unary main_v3457 main_v3458 (broadcastInDim S4x1x16 ![0, 2] bcast_S4x16_S4x1x16_0_2 : (⟨S4x16, .f32⟩ : BufTy).Contents (Elt F) → (⟨S4x1x16, .f32⟩ : BufTy).Contents (Elt F)),
    unary main_v3458 main_v3459 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3455 main_v3459 main_v3460 (mulf : (⟨S4x256x16, .f32⟩ : BufTy).Contents (Elt F) → (⟨S4x256x16, .f32⟩ : BufTy).Contents (Elt F) → (⟨S4x256x16, .f32⟩ : BufTy).Contents (Elt F)),
    nullary main_cst_344 (constant S_ .f32 0x00000000#32),
    binary main_v3460 main_cst_344 main_v3461 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_345 (constantI S_ 32 172#32),
    unary main_c_345 main_v3462 (broadcastInDim S1 ![] bcast_S_S1 : (⟨S_, .i32⟩ : BufTy).Contents (Elt F) → (⟨S1, .i32⟩ : BufTy).Contents (Elt F)),
    ternary main_v3443 main_v3462 main_v3461 main_v3463 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps172_ok : (stepOps172 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step172_val (V : Valuation τ sig (Elt Ideal)) :
    after (stepOps172 (F := Ideal)) V (no_index (Proc.devRef .tc main_v3455)) = stepH 172 (by decide) (V (Proc.devRef .tc main_arg0)) (V (Proc.devRef .tc main_v3)) (V (Proc.devRef .tc main_arg2)) (V (Proc.devRef .tc main_v3435))
    ∧ after (stepOps172 (F := Ideal)) V (no_index (Proc.devRef .tc main_v3463)) = stepY 172 (by decide) (V (Proc.devRef .tc main_arg3)) (stepH 172 (by decide) (V (Proc.devRef .tc main_arg0)) (V (Proc.devRef .tc main_v3)) (V (Proc.devRef .tc main_arg2)) (V (Proc.devRef .tc main_v3435))) (V (Proc.devRef .tc main_v3443)) := by
  simp only [stepOps172]
  after_results_simp
  first | exact ⟨rfl, rfl⟩ | fail "value"
/-- Step 173 of the loop: operations 3813 … 3834 of the program. -/
abbrev stepOps173 : List (HloOp τ sig (Elt F)) :=
  [ unary main_v3 main_v3464 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3455 main_v3464 main_v3465 (mulf : (⟨S4x256x16, .f32⟩ : BufTy).Contents (Elt F) → (⟨S4x256x16, .f32⟩ : BufTy).Contents (Elt F) → (⟨S4x256x16, .f32⟩ : BufTy).Contents (Elt F)),
    unary main_arg0 main_v3466 ((extractStridedSlice S4x1x256 ![0, 173, 0] · slices_S4x512x256_S4x1x256_0_173_0) : (⟨S4x512x256, .f32⟩ : BufTy).Contents (Elt F) → (⟨S4x1x256, .f32⟩ : BufTy).Contents (Elt F)),
    reshape main_v3466 main_v3467 rfl shapeCasts_S4x1x256_S4x256,
    unary main_v3467 main_v3468 (broadcastInDim S4x256x1 ![0, 1] bcast_S4x256_S4x256x1_0_1 : (⟨S4x256, .f32⟩ : BufTy).Contents (Elt F) → (⟨S4x256x1, .f32⟩ : BufTy).Contents (Elt F)),
    unary main_arg2 main_v3469 ((extractStridedSlice S4x1x16 ![0, 173, 0] · slices_S4x512x16_S4x1x16_0_173_0) : (⟨S4x512x16, .f32⟩ : BufTy).Contents (Elt F) → (⟨S4x1x16, .f32⟩ : BufTy).Contents (Elt F)),
    reshape main_v3469 main_v3470 rfl shapeCasts_S4x1x16_S4x16,
    unary main_v3470 main_v3471 (broadcastInDim S4x1x16 ![0, 2] bcast_S4x16_S4x1x16_0_2 : (⟨S4x16, .f32⟩ : BufTy).Contents (Elt F) → (⟨S4x1x16, .f32⟩ : BufTy).Contents (Elt F)),
    unary main_v3468 main_v3472 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3471 main_v3473 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3472 main_v3473 main_v3474 (mulf : (⟨S4x256x16, .f32⟩ : BufTy).Contents (Elt F) → (⟨S4x256x16, .f32⟩ : BufTy).Contents (Elt F) → (⟨S4x256x16, .f32⟩ : BufTy).Contents (Elt F)),
    binary main_v3465 main_v3474 main_v3475 (addf : (⟨S4x256x16, .f32⟩ : BufTy).Contents (Elt F) → (⟨S4x256x16, .f32⟩ : BufTy).Contents (Elt F) → (⟨S4x256x16, .f32⟩ : BufTy).Contents (Elt F)),
    unary main_arg3 main_v3476 ((extractStridedSlice S4x1x16 ![0, 173, 0] · slices_S4x512x16_S4x1x16_0_173_0) : (⟨S4x512x16, .f32⟩ : BufTy).Contents (Elt F) → (⟨S4x1x16, .f32⟩ : BufTy).Contents (Elt F)),
    reshape main_v3476 main_v3477 rfl shapeCasts_S4x1x16_S4x16,
    unary main_v3477 main_v3478 (broadcastInDim S4x1x16 ![0, 2] bcast_S4x16_S4x1x16_0_2 : (⟨S4x16, .f32⟩ : BufTy).Contents (Elt F) → (⟨S4x1x16, .f32⟩ : BufTy).Contents (Elt F)),
    unary main_v3478 main_v3479 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3475 main_v3479 main_v3480 (mulf : (⟨S4x256x16, .f32⟩ : BufTy).Contents (Elt F) → (⟨S4x256x16, .f32⟩ : BufTy).Contents (Elt F) → (⟨S4x256x16, .f32⟩ : BufTy).Contents (Elt F)),
    nullary main_cst_346 (constant S_ .f32 0x00000000#32),
    binary main_v3480 main_cst_346 main_v3481 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_347 (constantI S_ 32 173#32),
    unary main_c_347 main_v3482 (broadcastInDim S1 ![] bcast_S_S1 : (⟨S_, .i32⟩ : BufTy).Contents (Elt F) → (⟨S1, .i32⟩ : BufTy).Contents (Elt F)),
    ternary main_v3463 main_v3482 main_v3481 main_v3483 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps173_ok : (stepOps173 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step173_val (V : Valuation τ sig (Elt Ideal)) :
    after (stepOps173 (F := Ideal)) V (no_index (Proc.devRef .tc main_v3475)) = stepH 173 (by decide) (V (Proc.devRef .tc main_arg0)) (V (Proc.devRef .tc main_v3)) (V (Proc.devRef .tc main_arg2)) (V (Proc.devRef .tc main_v3455))
    ∧ after (stepOps173 (F := Ideal)) V (no_index (Proc.devRef .tc main_v3483)) = stepY 173 (by decide) (V (Proc.devRef .tc main_arg3)) (stepH 173 (by decide) (V (Proc.devRef .tc main_arg0)) (V (Proc.devRef .tc main_v3)) (V (Proc.devRef .tc main_arg2)) (V (Proc.devRef .tc main_v3455))) (V (Proc.devRef .tc main_v3463)) := by
  simp only [stepOps173]
  after_results_simp
  first | exact ⟨rfl, rfl⟩ | fail "value"
/-- Step 174 of the loop: operations 3835 … 3856 of the program. -/
abbrev stepOps174 : List (HloOp τ sig (Elt F)) :=
  [ unary main_v3 main_v3484 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3475 main_v3484 main_v3485 (mulf : (⟨S4x256x16, .f32⟩ : BufTy).Contents (Elt F) → (⟨S4x256x16, .f32⟩ : BufTy).Contents (Elt F) → (⟨S4x256x16, .f32⟩ : BufTy).Contents (Elt F)),
    unary main_arg0 main_v3486 ((extractStridedSlice S4x1x256 ![0, 174, 0] · slices_S4x512x256_S4x1x256_0_174_0) : (⟨S4x512x256, .f32⟩ : BufTy).Contents (Elt F) → (⟨S4x1x256, .f32⟩ : BufTy).Contents (Elt F)),
    reshape main_v3486 main_v3487 rfl shapeCasts_S4x1x256_S4x256,
    unary main_v3487 main_v3488 (broadcastInDim S4x256x1 ![0, 1] bcast_S4x256_S4x256x1_0_1 : (⟨S4x256, .f32⟩ : BufTy).Contents (Elt F) → (⟨S4x256x1, .f32⟩ : BufTy).Contents (Elt F)),
    unary main_arg2 main_v3489 ((extractStridedSlice S4x1x16 ![0, 174, 0] · slices_S4x512x16_S4x1x16_0_174_0) : (⟨S4x512x16, .f32⟩ : BufTy).Contents (Elt F) → (⟨S4x1x16, .f32⟩ : BufTy).Contents (Elt F)),
    reshape main_v3489 main_v3490 rfl shapeCasts_S4x1x16_S4x16,
    unary main_v3490 main_v3491 (broadcastInDim S4x1x16 ![0, 2] bcast_S4x16_S4x1x16_0_2 : (⟨S4x16, .f32⟩ : BufTy).Contents (Elt F) → (⟨S4x1x16, .f32⟩ : BufTy).Contents (Elt F)),
    unary main_v3488 main_v3492 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3491 main_v3493 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3492 main_v3493 main_v3494 (mulf : (⟨S4x256x16, .f32⟩ : BufTy).Contents (Elt F) → (⟨S4x256x16, .f32⟩ : BufTy).Contents (Elt F) → (⟨S4x256x16, .f32⟩ : BufTy).Contents (Elt F)),
    binary main_v3485 main_v3494 main_v3495 (addf : (⟨S4x256x16, .f32⟩ : BufTy).Contents (Elt F) → (⟨S4x256x16, .f32⟩ : BufTy).Contents (Elt F) → (⟨S4x256x16, .f32⟩ : BufTy).Contents (Elt F)),
    unary main_arg3 main_v3496 ((extractStridedSlice S4x1x16 ![0, 174, 0] · slices_S4x512x16_S4x1x16_0_174_0) : (⟨S4x512x16, .f32⟩ : BufTy).Contents (Elt F) → (⟨S4x1x16, .f32⟩ : BufTy).Contents (Elt F)),
    reshape main_v3496 main_v3497 rfl shapeCasts_S4x1x16_S4x16,
    unary main_v3497 main_v3498 (broadcastInDim S4x1x16 ![0, 2] bcast_S4x16_S4x1x16_0_2 : (⟨S4x16, .f32⟩ : BufTy).Contents (Elt F) → (⟨S4x1x16, .f32⟩ : BufTy).Contents (Elt F)),
    unary main_v3498 main_v3499 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3495 main_v3499 main_v3500 (mulf : (⟨S4x256x16, .f32⟩ : BufTy).Contents (Elt F) → (⟨S4x256x16, .f32⟩ : BufTy).Contents (Elt F) → (⟨S4x256x16, .f32⟩ : BufTy).Contents (Elt F)),
    nullary main_cst_348 (constant S_ .f32 0x00000000#32),
    binary main_v3500 main_cst_348 main_v3501 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_349 (constantI S_ 32 174#32),
    unary main_c_349 main_v3502 (broadcastInDim S1 ![] bcast_S_S1 : (⟨S_, .i32⟩ : BufTy).Contents (Elt F) → (⟨S1, .i32⟩ : BufTy).Contents (Elt F)),
    ternary main_v3483 main_v3502 main_v3501 main_v3503 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps174_ok : (stepOps174 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step174_val (V : Valuation τ sig (Elt Ideal)) :
    after (stepOps174 (F := Ideal)) V (no_index (Proc.devRef .tc main_v3495)) = stepH 174 (by decide) (V (Proc.devRef .tc main_arg0)) (V (Proc.devRef .tc main_v3)) (V (Proc.devRef .tc main_arg2)) (V (Proc.devRef .tc main_v3475))
    ∧ after (stepOps174 (F := Ideal)) V (no_index (Proc.devRef .tc main_v3503)) = stepY 174 (by decide) (V (Proc.devRef .tc main_arg3)) (stepH 174 (by decide) (V (Proc.devRef .tc main_arg0)) (V (Proc.devRef .tc main_v3)) (V (Proc.devRef .tc main_arg2)) (V (Proc.devRef .tc main_v3475))) (V (Proc.devRef .tc main_v3483)) := by
  simp only [stepOps174]
  after_results_simp
  first | exact ⟨rfl, rfl⟩ | fail "value"
/-- Step 175 of the loop: operations 3857 … 3878 of the program. -/
abbrev stepOps175 : List (HloOp τ sig (Elt F)) :=
  [ unary main_v3 main_v3504 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3495 main_v3504 main_v3505 (mulf : (⟨S4x256x16, .f32⟩ : BufTy).Contents (Elt F) → (⟨S4x256x16, .f32⟩ : BufTy).Contents (Elt F) → (⟨S4x256x16, .f32⟩ : BufTy).Contents (Elt F)),
    unary main_arg0 main_v3506 ((extractStridedSlice S4x1x256 ![0, 175, 0] · slices_S4x512x256_S4x1x256_0_175_0) : (⟨S4x512x256, .f32⟩ : BufTy).Contents (Elt F) → (⟨S4x1x256, .f32⟩ : BufTy).Contents (Elt F)),
    reshape main_v3506 main_v3507 rfl shapeCasts_S4x1x256_S4x256,
    unary main_v3507 main_v3508 (broadcastInDim S4x256x1 ![0, 1] bcast_S4x256_S4x256x1_0_1 : (⟨S4x256, .f32⟩ : BufTy).Contents (Elt F) → (⟨S4x256x1, .f32⟩ : BufTy).Contents (Elt F)),
    unary main_arg2 main_v3509 ((extractStridedSlice S4x1x16 ![0, 175, 0] · slices_S4x512x16_S4x1x16_0_175_0) : (⟨S4x512x16, .f32⟩ : BufTy).Contents (Elt F) → (⟨S4x1x16, .f32⟩ : BufTy).Contents (Elt F)),
    reshape main_v3509 main_v3510 rfl shapeCasts_S4x1x16_S4x16,
    unary main_v3510 main_v3511 (broadcastInDim S4x1x16 ![0, 2] bcast_S4x16_S4x1x16_0_2 : (⟨S4x16, .f32⟩ : BufTy).Contents (Elt F) → (⟨S4x1x16, .f32⟩ : BufTy).Contents (Elt F)),
    unary main_v3508 main_v3512 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3511 main_v3513 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3512 main_v3513 main_v3514 (mulf : (⟨S4x256x16, .f32⟩ : BufTy).Contents (Elt F) → (⟨S4x256x16, .f32⟩ : BufTy).Contents (Elt F) → (⟨S4x256x16, .f32⟩ : BufTy).Contents (Elt F)),
    binary main_v3505 main_v3514 main_v3515 (addf : (⟨S4x256x16, .f32⟩ : BufTy).Contents (Elt F) → (⟨S4x256x16, .f32⟩ : BufTy).Contents (Elt F) → (⟨S4x256x16, .f32⟩ : BufTy).Contents (Elt F)),
    unary main_arg3 main_v3516 ((extractStridedSlice S4x1x16 ![0, 175, 0] · slices_S4x512x16_S4x1x16_0_175_0) : (⟨S4x512x16, .f32⟩ : BufTy).Contents (Elt F) → (⟨S4x1x16, .f32⟩ : BufTy).Contents (Elt F)),
    reshape main_v3516 main_v3517 rfl shapeCasts_S4x1x16_S4x16,
    unary main_v3517 main_v3518 (broadcastInDim S4x1x16 ![0, 2] bcast_S4x16_S4x1x16_0_2 : (⟨S4x16, .f32⟩ : BufTy).Contents (Elt F) → (⟨S4x1x16, .f32⟩ : BufTy).Contents (Elt F)),
    unary main_v3518 main_v3519 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3515 main_v3519 main_v3520 (mulf : (⟨S4x256x16, .f32⟩ : BufTy).Contents (Elt F) → (⟨S4x256x16, .f32⟩ : BufTy).Contents (Elt F) → (⟨S4x256x16, .f32⟩ : BufTy).Contents (Elt F)),
    nullary main_cst_350 (constant S_ .f32 0x00000000#32),
    binary main_v3520 main_cst_350 main_v3521 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_351 (constantI S_ 32 175#32),
    unary main_c_351 main_v3522 (broadcastInDim S1 ![] bcast_S_S1 : (⟨S_, .i32⟩ : BufTy).Contents (Elt F) → (⟨S1, .i32⟩ : BufTy).Contents (Elt F)),
    ternary main_v3503 main_v3522 main_v3521 main_v3523 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps175_ok : (stepOps175 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step175_val (V : Valuation τ sig (Elt Ideal)) :
    after (stepOps175 (F := Ideal)) V (no_index (Proc.devRef .tc main_v3515)) = stepH 175 (by decide) (V (Proc.devRef .tc main_arg0)) (V (Proc.devRef .tc main_v3)) (V (Proc.devRef .tc main_arg2)) (V (Proc.devRef .tc main_v3495))
    ∧ after (stepOps175 (F := Ideal)) V (no_index (Proc.devRef .tc main_v3523)) = stepY 175 (by decide) (V (Proc.devRef .tc main_arg3)) (stepH 175 (by decide) (V (Proc.devRef .tc main_arg0)) (V (Proc.devRef .tc main_v3)) (V (Proc.devRef .tc main_arg2)) (V (Proc.devRef .tc main_v3495))) (V (Proc.devRef .tc main_v3503)) := by
  simp only [stepOps175]
  after_results_simp
  first | exact ⟨rfl, rfl⟩ | fail "value"

end Cert.ReferenceIdeal.RefRun

end
-- ==== Proof.RefTableStep11.lean ====
/-
  Steps 176 … 191 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 176 of the loop: operations 3879 … 3900 of the program. -/
abbrev stepOps176 : List (HloOp τ sig (Elt F)) :=
  [ unary main_v3 main_v3524 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3515 main_v3524 main_v3525 (mulf : (⟨S4x256x16, .f32⟩ : BufTy).Contents (Elt F) → (⟨S4x256x16, .f32⟩ : BufTy).Contents (Elt F) → (⟨S4x256x16, .f32⟩ : BufTy).Contents (Elt F)),
    unary main_arg0 main_v3526 ((extractStridedSlice S4x1x256 ![0, 176, 0] · slices_S4x512x256_S4x1x256_0_176_0) : (⟨S4x512x256, .f32⟩ : BufTy).Contents (Elt F) → (⟨S4x1x256, .f32⟩ : BufTy).Contents (Elt F)),
    reshape main_v3526 main_v3527 rfl shapeCasts_S4x1x256_S4x256,
    unary main_v3527 main_v3528 (broadcastInDim S4x256x1 ![0, 1] bcast_S4x256_S4x256x1_0_1 : (⟨S4x256, .f32⟩ : BufTy).Contents (Elt F) → (⟨S4x256x1, .f32⟩ : BufTy).Contents (Elt F)),
    unary main_arg2 main_v3529 ((extractStridedSlice S4x1x16 ![0, 176, 0] · slices_S4x512x16_S4x1x16_0_176_0) : (⟨S4x512x16, .f32⟩ : BufTy).Contents (Elt F) → (⟨S4x1x16, .f32⟩ : BufTy).Contents (Elt F)),
    reshape main_v3529 main_v3530 rfl shapeCasts_S4x1x16_S4x16,
    unary main_v3530 main_v3531 (broadcastInDim S4x1x16 ![0, 2] bcast_S4x16_S4x1x16_0_2 : (⟨S4x16, .f32⟩ : BufTy).Contents (Elt F) → (⟨S4x1x16, .f32⟩ : BufTy).Contents (Elt F)),
    unary main_v3528 main_v3532 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3531 main_v3533 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3532 main_v3533 main_v3534 (mulf : (⟨S4x256x16, .f32⟩ : BufTy).Contents (Elt F) → (⟨S4x256x16, .f32⟩ : BufTy).Contents (Elt F) → (⟨S4x256x16, .f32⟩ : BufTy).Contents (Elt F)),
    binary main_v3525 main_v3534 main_v3535 (addf : (⟨S4x256x16, .f32⟩ : BufTy).Contents (Elt F) → (⟨S4x256x16, .f32⟩ : BufTy).Contents (Elt F) → (⟨S4x256x16, .f32⟩ : BufTy).Contents (Elt F)),
    unary main_arg3 main_v3536 ((extractStridedSlice S4x1x16 ![0, 176, 0] · slices_S4x512x16_S4x1x16_0_176_0) : (⟨S4x512x16, .f32⟩ : BufTy).Contents (Elt F) → (⟨S4x1x16, .f32⟩ : BufTy).Contents (Elt F)),
    reshape main_v3536 main_v3537 rfl shapeCasts_S4x1x16_S4x16,
    unary main_v3537 main_v3538 (broadcastInDim S4x1x16 ![0, 2] bcast_S4x16_S4x1x16_0_2 : (⟨S4x16, .f32⟩ : BufTy).Contents (Elt F) → (⟨S4x1x16, .f32⟩ : BufTy).Contents (Elt F)),
    unary main_v3538 main_v3539 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3535 main_v3539 main_v3540 (mulf : (⟨S4x256x16, .f32⟩ : BufTy).Contents (Elt F) → (⟨S4x256x16, .f32⟩ : BufTy).Contents (Elt F) → (⟨S4x256x16, .f32⟩ : BufTy).Contents (Elt F)),
    nullary main_cst_352 (constant S_ .f32 0x00000000#32),
    binary main_v3540 main_cst_352 main_v3541 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_353 (constantI S_ 32 176#32),
    unary main_c_353 main_v3542 (broadcastInDim S1 ![] bcast_S_S1 : (⟨S_, .i32⟩ : BufTy).Contents (Elt F) → (⟨S1, .i32⟩ : BufTy).Contents (Elt F)),
    ternary main_v3523 main_v3542 main_v3541 main_v3543 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps176_ok : (stepOps176 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step176_val (V : Valuation τ sig (Elt Ideal)) :
    after (stepOps176 (F := Ideal)) V (no_index (Proc.devRef .tc main_v3535)) = stepH 176 (by decide) (V (Proc.devRef .tc main_arg0)) (V (Proc.devRef .tc main_v3)) (V (Proc.devRef .tc main_arg2)) (V (Proc.devRef .tc main_v3515))
    ∧ after (stepOps176 (F := Ideal)) V (no_index (Proc.devRef .tc main_v3543)) = stepY 176 (by decide) (V (Proc.devRef .tc main_arg3)) (stepH 176 (by decide) (V (Proc.devRef .tc main_arg0)) (V (Proc.devRef .tc main_v3)) (V (Proc.devRef .tc main_arg2)) (V (Proc.devRef .tc main_v3515))) (V (Proc.devRef .tc main_v3523)) := by
  simp only [stepOps176]
  after_results_simp
  first | exact ⟨rfl, rfl⟩ | fail "value"
/-- Step 177 of the loop: operations 3901 … 3922 of the program. -/
abbrev stepOps177 : List (HloOp τ sig (Elt F)) :=
  [ unary main_v3 main_v3544 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3535 main_v3544 main_v3545 (mulf : (⟨S4x256x16, .f32⟩ : BufTy).Contents (Elt F) → (⟨S4x256x16, .f32⟩ : BufTy).Contents (Elt F) → (⟨S4x256x16, .f32⟩ : BufTy).Contents (Elt F)),
    unary main_arg0 main_v3546 ((extractStridedSlice S4x1x256 ![0, 177, 0] · slices_S4x512x256_S4x1x256_0_177_0) : (⟨S4x512x256, .f32⟩ : BufTy).Contents (Elt F) → (⟨S4x1x256, .f32⟩ : BufTy).Contents (Elt F)),
    reshape main_v3546 main_v3547 rfl shapeCasts_S4x1x256_S4x256,
    unary main_v3547 main_v3548 (broadcastInDim S4x256x1 ![0, 1] bcast_S4x256_S4x256x1_0_1 : (⟨S4x256, .f32⟩ : BufTy).Contents (Elt F) → (⟨S4x256x1, .f32⟩ : BufTy).Contents (Elt F)),
    unary main_arg2 main_v3549 ((extractStridedSlice S4x1x16 ![0, 177, 0] · slices_S4x512x16_S4x1x16_0_177_0) : (⟨S4x512x16, .f32⟩ : BufTy).Contents (Elt F) → (⟨S4x1x16, .f32⟩ : BufTy).Contents (Elt F)),
    reshape main_v3549 main_v3550 rfl shapeCasts_S4x1x16_S4x16,
    unary main_v3550 main_v3551 (broadcastInDim S4x1x16 ![0, 2] bcast_S4x16_S4x1x16_0_2 : (⟨S4x16, .f32⟩ : BufTy).Contents (Elt F) → (⟨S4x1x16, .f32⟩ : BufTy).Contents (Elt F)),
    unary main_v3548 main_v3552 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3551 main_v3553 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3552 main_v3553 main_v3554 (mulf : (⟨S4x256x16, .f32⟩ : BufTy).Contents (Elt F) → (⟨S4x256x16, .f32⟩ : BufTy).Contents (Elt F) → (⟨S4x256x16, .f32⟩ : BufTy).Contents (Elt F)),
    binary main_v3545 main_v3554 main_v3555 (addf : (⟨S4x256x16, .f32⟩ : BufTy).Contents (Elt F) → (⟨S4x256x16, .f32⟩ : BufTy).Contents (Elt F) → (⟨S4x256x16, .f32⟩ : BufTy).Contents (Elt F)),
    unary main_arg3 main_v3556 ((extractStridedSlice S4x1x16 ![0, 177, 0] · slices_S4x512x16_S4x1x16_0_177_0) : (⟨S4x512x16, .f32⟩ : BufTy).Contents (Elt F) → (⟨S4x1x16, .f32⟩ : BufTy).Contents (Elt F)),
    reshape main_v3556 main_v3557 rfl shapeCasts_S4x1x16_S4x16,
    unary main_v3557 main_v3558 (broadcastInDim S4x1x16 ![0, 2] bcast_S4x16_S4x1x16_0_2 : (⟨S4x16, .f32⟩ : BufTy).Contents (Elt F) → (⟨S4x1x16, .f32⟩ : BufTy).Contents (Elt F)),
    unary main_v3558 main_v3559 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3555 main_v3559 main_v3560 (mulf : (⟨S4x256x16, .f32⟩ : BufTy).Contents (Elt F) → (⟨S4x256x16, .f32⟩ : BufTy).Contents (Elt F) → (⟨S4x256x16, .f32⟩ : BufTy).Contents (Elt F)),
    nullary main_cst_354 (constant S_ .f32 0x00000000#32),
    binary main_v3560 main_cst_354 main_v3561 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_355 (constantI S_ 32 177#32),
    unary main_c_355 main_v3562 (broadcastInDim S1 ![] bcast_S_S1 : (⟨S_, .i32⟩ : BufTy).Contents (Elt F) → (⟨S1, .i32⟩ : BufTy).Contents (Elt F)),
    ternary main_v3543 main_v3562 main_v3561 main_v3563 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps177_ok : (stepOps177 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step177_val (V : Valuation τ sig (Elt Ideal)) :
    after (stepOps177 (F := Ideal)) V (no_index (Proc.devRef .tc main_v3555)) = stepH 177 (by decide) (V (Proc.devRef .tc main_arg0)) (V (Proc.devRef .tc main_v3)) (V (Proc.devRef .tc main_arg2)) (V (Proc.devRef .tc main_v3535))
    ∧ after (stepOps177 (F := Ideal)) V (no_index (Proc.devRef .tc main_v3563)) = stepY 177 (by decide) (V (Proc.devRef .tc main_arg3)) (stepH 177 (by decide) (V (Proc.devRef .tc main_arg0)) (V (Proc.devRef .tc main_v3)) (V (Proc.devRef .tc main_arg2)) (V (Proc.devRef .tc main_v3535))) (V (Proc.devRef .tc main_v3543)) := by
  simp only [stepOps177]
  after_results_simp
  first | exact ⟨rfl, rfl⟩ | fail "value"
/-- Step 178 of the loop: operations 3923 … 3944 of the program. -/
abbrev stepOps178 : List (HloOp τ sig (Elt F)) :=
  [ unary main_v3 main_v3564 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3555 main_v3564 main_v3565 (mulf : (⟨S4x256x16, .f32⟩ : BufTy).Contents (Elt F) → (⟨S4x256x16, .f32⟩ : BufTy).Contents (Elt F) → (⟨S4x256x16, .f32⟩ : BufTy).Contents (Elt F)),
    unary main_arg0 main_v3566 ((extractStridedSlice S4x1x256 ![0, 178, 0] · slices_S4x512x256_S4x1x256_0_178_0) : (⟨S4x512x256, .f32⟩ : BufTy).Contents (Elt F) → (⟨S4x1x256, .f32⟩ : BufTy).Contents (Elt F)),
    reshape main_v3566 main_v3567 rfl shapeCasts_S4x1x256_S4x256,
    unary main_v3567 main_v3568 (broadcastInDim S4x256x1 ![0, 1] bcast_S4x256_S4x256x1_0_1 : (⟨S4x256, .f32⟩ : BufTy).Contents (Elt F) → (⟨S4x256x1, .f32⟩ : BufTy).Contents (Elt F)),
    unary main_arg2 main_v3569 ((extractStridedSlice S4x1x16 ![0, 178, 0] · slices_S4x512x16_S4x1x16_0_178_0) : (⟨S4x512x16, .f32⟩ : BufTy).Contents (Elt F) → (⟨S4x1x16, .f32⟩ : BufTy).Contents (Elt F)),
    reshape main_v3569 main_v3570 rfl shapeCasts_S4x1x16_S4x16,
    unary main_v3570 main_v3571 (broadcastInDim S4x1x16 ![0, 2] bcast_S4x16_S4x1x16_0_2 : (⟨S4x16, .f32⟩ : BufTy).Contents (Elt F) → (⟨S4x1x16, .f32⟩ : BufTy).Contents (Elt F)),
    unary main_v3568 main_v3572 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3571 main_v3573 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3572 main_v3573 main_v3574 (mulf : (⟨S4x256x16, .f32⟩ : BufTy).Contents (Elt F) → (⟨S4x256x16, .f32⟩ : BufTy).Contents (Elt F) → (⟨S4x256x16, .f32⟩ : BufTy).Contents (Elt F)),
    binary main_v3565 main_v3574 main_v3575 (addf : (⟨S4x256x16, .f32⟩ : BufTy).Contents (Elt F) → (⟨S4x256x16, .f32⟩ : BufTy).Contents (Elt F) → (⟨S4x256x16, .f32⟩ : BufTy).Contents (Elt F)),
    unary main_arg3 main_v3576 ((extractStridedSlice S4x1x16 ![0, 178, 0] · slices_S4x512x16_S4x1x16_0_178_0) : (⟨S4x512x16, .f32⟩ : BufTy).Contents (Elt F) → (⟨S4x1x16, .f32⟩ : BufTy).Contents (Elt F)),
    reshape main_v3576 main_v3577 rfl shapeCasts_S4x1x16_S4x16,
    unary main_v3577 main_v3578 (broadcastInDim S4x1x16 ![0, 2] bcast_S4x16_S4x1x16_0_2 : (⟨S4x16, .f32⟩ : BufTy).Contents (Elt F) → (⟨S4x1x16, .f32⟩ : BufTy).Contents (Elt F)),
    unary main_v3578 main_v3579 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3575 main_v3579 main_v3580 (mulf : (⟨S4x256x16, .f32⟩ : BufTy).Contents (Elt F) → (⟨S4x256x16, .f32⟩ : BufTy).Contents (Elt F) → (⟨S4x256x16, .f32⟩ : BufTy).Contents (Elt F)),
    nullary main_cst_356 (constant S_ .f32 0x00000000#32),
    binary main_v3580 main_cst_356 main_v3581 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_357 (constantI S_ 32 178#32),
    unary main_c_357 main_v3582 (broadcastInDim S1 ![] bcast_S_S1 : (⟨S_, .i32⟩ : BufTy).Contents (Elt F) → (⟨S1, .i32⟩ : BufTy).Contents (Elt F)),
    ternary main_v3563 main_v3582 main_v3581 main_v3583 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps178_ok : (stepOps178 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step178_val (V : Valuation τ sig (Elt Ideal)) :
    after (stepOps178 (F := Ideal)) V (no_index (Proc.devRef .tc main_v3575)) = stepH 178 (by decide) (V (Proc.devRef .tc main_arg0)) (V (Proc.devRef .tc main_v3)) (V (Proc.devRef .tc main_arg2)) (V (Proc.devRef .tc main_v3555))
    ∧ after (stepOps178 (F := Ideal)) V (no_index (Proc.devRef .tc main_v3583)) = stepY 178 (by decide) (V (Proc.devRef .tc main_arg3)) (stepH 178 (by decide) (V (Proc.devRef .tc main_arg0)) (V (Proc.devRef .tc main_v3)) (V (Proc.devRef .tc main_arg2)) (V (Proc.devRef .tc main_v3555))) (V (Proc.devRef .tc main_v3563)) := by
  simp only [stepOps178]
  after_results_simp
  first | exact ⟨rfl, rfl⟩ | fail "value"
/-- Step 179 of the loop: operations 3945 … 3966 of the program. -/
abbrev stepOps179 : List (HloOp τ sig (Elt F)) :=
  [ unary main_v3 main_v3584 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3575 main_v3584 main_v3585 (mulf : (⟨S4x256x16, .f32⟩ : BufTy).Contents (Elt F) → (⟨S4x256x16, .f32⟩ : BufTy).Contents (Elt F) → (⟨S4x256x16, .f32⟩ : BufTy).Contents (Elt F)),
    unary main_arg0 main_v3586 ((extractStridedSlice S4x1x256 ![0, 179, 0] · slices_S4x512x256_S4x1x256_0_179_0) : (⟨S4x512x256, .f32⟩ : BufTy).Contents (Elt F) → (⟨S4x1x256, .f32⟩ : BufTy).Contents (Elt F)),
    reshape main_v3586 main_v3587 rfl shapeCasts_S4x1x256_S4x256,
    unary main_v3587 main_v3588 (broadcastInDim S4x256x1 ![0, 1] bcast_S4x256_S4x256x1_0_1 : (⟨S4x256, .f32⟩ : BufTy).Contents (Elt F) → (⟨S4x256x1, .f32⟩ : BufTy).Contents (Elt F)),
    unary main_arg2 main_v3589 ((extractStridedSlice S4x1x16 ![0, 179, 0] · slices_S4x512x16_S4x1x16_0_179_0) : (⟨S4x512x16, .f32⟩ : BufTy).Contents (Elt F) → (⟨S4x1x16, .f32⟩ : BufTy).Contents (Elt F)),
    reshape main_v3589 main_v3590 rfl shapeCasts_S4x1x16_S4x16,
    unary main_v3590 main_v3591 (broadcastInDim S4x1x16 ![0, 2] bcast_S4x16_S4x1x16_0_2 : (⟨S4x16, .f32⟩ : BufTy).Contents (Elt F) → (⟨S4x1x16, .f32⟩ : BufTy).Contents (Elt F)),
    unary main_v3588 main_v3592 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3591 main_v3593 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3592 main_v3593 main_v3594 (mulf : (⟨S4x256x16, .f32⟩ : BufTy).Contents (Elt F) → (⟨S4x256x16, .f32⟩ : BufTy).Contents (Elt F) → (⟨S4x256x16, .f32⟩ : BufTy).Contents (Elt F)),
    binary main_v3585 main_v3594 main_v3595 (addf : (⟨S4x256x16, .f32⟩ : BufTy).Contents (Elt F) → (⟨S4x256x16, .f32⟩ : BufTy).Contents (Elt F) → (⟨S4x256x16, .f32⟩ : BufTy).Contents (Elt F)),
    unary main_arg3 main_v3596 ((extractStridedSlice S4x1x16 ![0, 179, 0] · slices_S4x512x16_S4x1x16_0_179_0) : (⟨S4x512x16, .f32⟩ : BufTy).Contents (Elt F) → (⟨S4x1x16, .f32⟩ : BufTy).Contents (Elt F)),
    reshape main_v3596 main_v3597 rfl shapeCasts_S4x1x16_S4x16,
    unary main_v3597 main_v3598 (broadcastInDim S4x1x16 ![0, 2] bcast_S4x16_S4x1x16_0_2 : (⟨S4x16, .f32⟩ : BufTy).Contents (Elt F) → (⟨S4x1x16, .f32⟩ : BufTy).Contents (Elt F)),
    unary main_v3598 main_v3599 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3595 main_v3599 main_v3600 (mulf : (⟨S4x256x16, .f32⟩ : BufTy).Contents (Elt F) → (⟨S4x256x16, .f32⟩ : BufTy).Contents (Elt F) → (⟨S4x256x16, .f32⟩ : BufTy).Contents (Elt F)),
    nullary main_cst_358 (constant S_ .f32 0x00000000#32),
    binary main_v3600 main_cst_358 main_v3601 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_359 (constantI S_ 32 179#32),
    unary main_c_359 main_v3602 (broadcastInDim S1 ![] bcast_S_S1 : (⟨S_, .i32⟩ : BufTy).Contents (Elt F) → (⟨S1, .i32⟩ : BufTy).Contents (Elt F)),
    ternary main_v3583 main_v3602 main_v3601 main_v3603 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps179_ok : (stepOps179 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step179_val (V : Valuation τ sig (Elt Ideal)) :
    after (stepOps179 (F := Ideal)) V (no_index (Proc.devRef .tc main_v3595)) = stepH 179 (by decide) (V (Proc.devRef .tc main_arg0)) (V (Proc.devRef .tc main_v3)) (V (Proc.devRef .tc main_arg2)) (V (Proc.devRef .tc main_v3575))
    ∧ after (stepOps179 (F := Ideal)) V (no_index (Proc.devRef .tc main_v3603)) = stepY 179 (by decide) (V (Proc.devRef .tc main_arg3)) (stepH 179 (by decide) (V (Proc.devRef .tc main_arg0)) (V (Proc.devRef .tc main_v3)) (V (Proc.devRef .tc main_arg2)) (V (Proc.devRef .tc main_v3575))) (V (Proc.devRef .tc main_v3583)) := by
  simp only [stepOps179]
  after_results_simp
  first | exact ⟨rfl, rfl⟩ | fail "value"
/-- Step 180 of the loop: operations 3967 … 3988 of the program. -/
abbrev stepOps180 : List (HloOp τ sig (Elt F)) :=
  [ unary main_v3 main_v3604 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3595 main_v3604 main_v3605 (mulf : (⟨S4x256x16, .f32⟩ : BufTy).Contents (Elt F) → (⟨S4x256x16, .f32⟩ : BufTy).Contents (Elt F) → (⟨S4x256x16, .f32⟩ : BufTy).Contents (Elt F)),
    unary main_arg0 main_v3606 ((extractStridedSlice S4x1x256 ![0, 180, 0] · slices_S4x512x256_S4x1x256_0_180_0) : (⟨S4x512x256, .f32⟩ : BufTy).Contents (Elt F) → (⟨S4x1x256, .f32⟩ : BufTy).Contents (Elt F)),
    reshape main_v3606 main_v3607 rfl shapeCasts_S4x1x256_S4x256,
    unary main_v3607 main_v3608 (broadcastInDim S4x256x1 ![0, 1] bcast_S4x256_S4x256x1_0_1 : (⟨S4x256, .f32⟩ : BufTy).Contents (Elt F) → (⟨S4x256x1, .f32⟩ : BufTy).Contents (Elt F)),
    unary main_arg2 main_v3609 ((extractStridedSlice S4x1x16 ![0, 180, 0] · slices_S4x512x16_S4x1x16_0_180_0) : (⟨S4x512x16, .f32⟩ : BufTy).Contents (Elt F) → (⟨S4x1x16, .f32⟩ : BufTy).Contents (Elt F)),
    reshape main_v3609 main_v3610 rfl shapeCasts_S4x1x16_S4x16,
    unary main_v3610 main_v3611 (broadcastInDim S4x1x16 ![0, 2] bcast_S4x16_S4x1x16_0_2 : (⟨S4x16, .f32⟩ : BufTy).Contents (Elt F) → (⟨S4x1x16, .f32⟩ : BufTy).Contents (Elt F)),
    unary main_v3608 main_v3612 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3611 main_v3613 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3612 main_v3613 main_v3614 (mulf : (⟨S4x256x16, .f32⟩ : BufTy).Contents (Elt F) → (⟨S4x256x16, .f32⟩ : BufTy).Contents (Elt F) → (⟨S4x256x16, .f32⟩ : BufTy).Contents (Elt F)),
    binary main_v3605 main_v3614 main_v3615 (addf : (⟨S4x256x16, .f32⟩ : BufTy).Contents (Elt F) → (⟨S4x256x16, .f32⟩ : BufTy).Contents (Elt F) → (⟨S4x256x16, .f32⟩ : BufTy).Contents (Elt F)),
    unary main_arg3 main_v3616 ((extractStridedSlice S4x1x16 ![0, 180, 0] · slices_S4x512x16_S4x1x16_0_180_0) : (⟨S4x512x16, .f32⟩ : BufTy).Contents (Elt F) → (⟨S4x1x16, .f32⟩ : BufTy).Contents (Elt F)),
    reshape main_v3616 main_v3617 rfl shapeCasts_S4x1x16_S4x16,
    unary main_v3617 main_v3618 (broadcastInDim S4x1x16 ![0, 2] bcast_S4x16_S4x1x16_0_2 : (⟨S4x16, .f32⟩ : BufTy).Contents (Elt F) → (⟨S4x1x16, .f32⟩ : BufTy).Contents (Elt F)),
    unary main_v3618 main_v3619 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3615 main_v3619 main_v3620 (mulf : (⟨S4x256x16, .f32⟩ : BufTy).Contents (Elt F) → (⟨S4x256x16, .f32⟩ : BufTy).Contents (Elt F) → (⟨S4x256x16, .f32⟩ : BufTy).Contents (Elt F)),
    nullary main_cst_360 (constant S_ .f32 0x00000000#32),
    binary main_v3620 main_cst_360 main_v3621 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_361 (constantI S_ 32 180#32),
    unary main_c_361 main_v3622 (broadcastInDim S1 ![] bcast_S_S1 : (⟨S_, .i32⟩ : BufTy).Contents (Elt F) → (⟨S1, .i32⟩ : BufTy).Contents (Elt F)),
    ternary main_v3603 main_v3622 main_v3621 main_v3623 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps180_ok : (stepOps180 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step180_val (V : Valuation τ sig (Elt Ideal)) :
    after (stepOps180 (F := Ideal)) V (no_index (Proc.devRef .tc main_v3615)) = stepH 180 (by decide) (V (Proc.devRef .tc main_arg0)) (V (Proc.devRef .tc main_v3)) (V (Proc.devRef .tc main_arg2)) (V (Proc.devRef .tc main_v3595))
    ∧ after (stepOps180 (F := Ideal)) V (no_index (Proc.devRef .tc main_v3623)) = stepY 180 (by decide) (V (Proc.devRef .tc main_arg3)) (stepH 180 (by decide) (V (Proc.devRef .tc main_arg0)) (V (Proc.devRef .tc main_v3)) (V (Proc.devRef .tc main_arg2)) (V (Proc.devRef .tc main_v3595))) (V (Proc.devRef .tc main_v3603)) := by
  simp only [stepOps180]
  after_results_simp
  first | exact ⟨rfl, rfl⟩ | fail "value"
/-- Step 181 of the loop: operations 3989 … 4010 of the program. -/
abbrev stepOps181 : List (HloOp τ sig (Elt F)) :=
  [ unary main_v3 main_v3624 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3615 main_v3624 main_v3625 (mulf : (⟨S4x256x16, .f32⟩ : BufTy).Contents (Elt F) → (⟨S4x256x16, .f32⟩ : BufTy).Contents (Elt F) → (⟨S4x256x16, .f32⟩ : BufTy).Contents (Elt F)),
    unary main_arg0 main_v3626 ((extractStridedSlice S4x1x256 ![0, 181, 0] · slices_S4x512x256_S4x1x256_0_181_0) : (⟨S4x512x256, .f32⟩ : BufTy).Contents (Elt F) → (⟨S4x1x256, .f32⟩ : BufTy).Contents (Elt F)),
    reshape main_v3626 main_v3627 rfl shapeCasts_S4x1x256_S4x256,
    unary main_v3627 main_v3628 (broadcastInDim S4x256x1 ![0, 1] bcast_S4x256_S4x256x1_0_1 : (⟨S4x256, .f32⟩ : BufTy).Contents (Elt F) → (⟨S4x256x1, .f32⟩ : BufTy).Contents (Elt F)),
    unary main_arg2 main_v3629 ((extractStridedSlice S4x1x16 ![0, 181, 0] · slices_S4x512x16_S4x1x16_0_181_0) : (⟨S4x512x16, .f32⟩ : BufTy).Contents (Elt F) → (⟨S4x1x16, .f32⟩ : BufTy).Contents (Elt F)),
    reshape main_v3629 main_v3630 rfl shapeCasts_S4x1x16_S4x16,
    unary main_v3630 main_v3631 (broadcastInDim S4x1x16 ![0, 2] bcast_S4x16_S4x1x16_0_2 : (⟨S4x16, .f32⟩ : BufTy).Contents (Elt F) → (⟨S4x1x16, .f32⟩ : BufTy).Contents (Elt F)),
    unary main_v3628 main_v3632 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3631 main_v3633 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3632 main_v3633 main_v3634 (mulf : (⟨S4x256x16, .f32⟩ : BufTy).Contents (Elt F) → (⟨S4x256x16, .f32⟩ : BufTy).Contents (Elt F) → (⟨S4x256x16, .f32⟩ : BufTy).Contents (Elt F)),
    binary main_v3625 main_v3634 main_v3635 (addf : (⟨S4x256x16, .f32⟩ : BufTy).Contents (Elt F) → (⟨S4x256x16, .f32⟩ : BufTy).Contents (Elt F) → (⟨S4x256x16, .f32⟩ : BufTy).Contents (Elt F)),
    unary main_arg3 main_v3636 ((extractStridedSlice S4x1x16 ![0, 181, 0] · slices_S4x512x16_S4x1x16_0_181_0) : (⟨S4x512x16, .f32⟩ : BufTy).Contents (Elt F) → (⟨S4x1x16, .f32⟩ : BufTy).Contents (Elt F)),
    reshape main_v3636 main_v3637 rfl shapeCasts_S4x1x16_S4x16,
    unary main_v3637 main_v3638 (broadcastInDim S4x1x16 ![0, 2] bcast_S4x16_S4x1x16_0_2 : (⟨S4x16, .f32⟩ : BufTy).Contents (Elt F) → (⟨S4x1x16, .f32⟩ : BufTy).Contents (Elt F)),
    unary main_v3638 main_v3639 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3635 main_v3639 main_v3640 (mulf : (⟨S4x256x16, .f32⟩ : BufTy).Contents (Elt F) → (⟨S4x256x16, .f32⟩ : BufTy).Contents (Elt F) → (⟨S4x256x16, .f32⟩ : BufTy).Contents (Elt F)),
    nullary main_cst_362 (constant S_ .f32 0x00000000#32),
    binary main_v3640 main_cst_362 main_v3641 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_363 (constantI S_ 32 181#32),
    unary main_c_363 main_v3642 (broadcastInDim S1 ![] bcast_S_S1 : (⟨S_, .i32⟩ : BufTy).Contents (Elt F) → (⟨S1, .i32⟩ : BufTy).Contents (Elt F)),
    ternary main_v3623 main_v3642 main_v3641 main_v3643 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps181_ok : (stepOps181 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step181_val (V : Valuation τ sig (Elt Ideal)) :
    after (stepOps181 (F := Ideal)) V (no_index (Proc.devRef .tc main_v3635)) = stepH 181 (by decide) (V (Proc.devRef .tc main_arg0)) (V (Proc.devRef .tc main_v3)) (V (Proc.devRef .tc main_arg2)) (V (Proc.devRef .tc main_v3615))
    ∧ after (stepOps181 (F := Ideal)) V (no_index (Proc.devRef .tc main_v3643)) = stepY 181 (by decide) (V (Proc.devRef .tc main_arg3)) (stepH 181 (by decide) (V (Proc.devRef .tc main_arg0)) (V (Proc.devRef .tc main_v3)) (V (Proc.devRef .tc main_arg2)) (V (Proc.devRef .tc main_v3615))) (V (Proc.devRef .tc main_v3623)) := by
  simp only [stepOps181]
  after_results_simp
  first | exact ⟨rfl, rfl⟩ | fail "value"
/-- Step 182 of the loop: operations 4011 … 4032 of the program. -/
abbrev stepOps182 : List (HloOp τ sig (Elt F)) :=
  [ unary main_v3 main_v3644 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3635 main_v3644 main_v3645 (mulf : (⟨S4x256x16, .f32⟩ : BufTy).Contents (Elt F) → (⟨S4x256x16, .f32⟩ : BufTy).Contents (Elt F) → (⟨S4x256x16, .f32⟩ : BufTy).Contents (Elt F)),
    unary main_arg0 main_v3646 ((extractStridedSlice S4x1x256 ![0, 182, 0] · slices_S4x512x256_S4x1x256_0_182_0) : (⟨S4x512x256, .f32⟩ : BufTy).Contents (Elt F) → (⟨S4x1x256, .f32⟩ : BufTy).Contents (Elt F)),
    reshape main_v3646 main_v3647 rfl shapeCasts_S4x1x256_S4x256,
    unary main_v3647 main_v3648 (broadcastInDim S4x256x1 ![0, 1] bcast_S4x256_S4x256x1_0_1 : (⟨S4x256, .f32⟩ : BufTy).Contents (Elt F) → (⟨S4x256x1, .f32⟩ : BufTy).Contents (Elt F)),
    unary main_arg2 main_v3649 ((extractStridedSlice S4x1x16 ![0, 182, 0] · slices_S4x512x16_S4x1x16_0_182_0) : (⟨S4x512x16, .f32⟩ : BufTy).Contents (Elt F) → (⟨S4x1x16, .f32⟩ : BufTy).Contents (Elt F)),
    reshape main_v3649 main_v3650 rfl shapeCasts_S4x1x16_S4x16,
    unary main_v3650 main_v3651 (broadcastInDim S4x1x16 ![0, 2] bcast_S4x16_S4x1x16_0_2 : (⟨S4x16, .f32⟩ : BufTy).Contents (Elt F) → (⟨S4x1x16, .f32⟩ : BufTy).Contents (Elt F)),
    unary main_v3648 main_v3652 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3651 main_v3653 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3652 main_v3653 main_v3654 (mulf : (⟨S4x256x16, .f32⟩ : BufTy).Contents (Elt F) → (⟨S4x256x16, .f32⟩ : BufTy).Contents (Elt F) → (⟨S4x256x16, .f32⟩ : BufTy).Contents (Elt F)),
    binary main_v3645 main_v3654 main_v3655 (addf : (⟨S4x256x16, .f32⟩ : BufTy).Contents (Elt F) → (⟨S4x256x16, .f32⟩ : BufTy).Contents (Elt F) → (⟨S4x256x16, .f32⟩ : BufTy).Contents (Elt F)),
    unary main_arg3 main_v3656 ((extractStridedSlice S4x1x16 ![0, 182, 0] · slices_S4x512x16_S4x1x16_0_182_0) : (⟨S4x512x16, .f32⟩ : BufTy).Contents (Elt F) → (⟨S4x1x16, .f32⟩ : BufTy).Contents (Elt F)),
    reshape main_v3656 main_v3657 rfl shapeCasts_S4x1x16_S4x16,
    unary main_v3657 main_v3658 (broadcastInDim S4x1x16 ![0, 2] bcast_S4x16_S4x1x16_0_2 : (⟨S4x16, .f32⟩ : BufTy).Contents (Elt F) → (⟨S4x1x16, .f32⟩ : BufTy).Contents (Elt F)),
    unary main_v3658 main_v3659 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3655 main_v3659 main_v3660 (mulf : (⟨S4x256x16, .f32⟩ : BufTy).Contents (Elt F) → (⟨S4x256x16, .f32⟩ : BufTy).Contents (Elt F) → (⟨S4x256x16, .f32⟩ : BufTy).Contents (Elt F)),
    nullary main_cst_364 (constant S_ .f32 0x00000000#32),
    binary main_v3660 main_cst_364 main_v3661 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_365 (constantI S_ 32 182#32),
    unary main_c_365 main_v3662 (broadcastInDim S1 ![] bcast_S_S1 : (⟨S_, .i32⟩ : BufTy).Contents (Elt F) → (⟨S1, .i32⟩ : BufTy).Contents (Elt F)),
    ternary main_v3643 main_v3662 main_v3661 main_v3663 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps182_ok : (stepOps182 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step182_val (V : Valuation τ sig (Elt Ideal)) :
    after (stepOps182 (F := Ideal)) V (no_index (Proc.devRef .tc main_v3655)) = stepH 182 (by decide) (V (Proc.devRef .tc main_arg0)) (V (Proc.devRef .tc main_v3)) (V (Proc.devRef .tc main_arg2)) (V (Proc.devRef .tc main_v3635))
    ∧ after (stepOps182 (F := Ideal)) V (no_index (Proc.devRef .tc main_v3663)) = stepY 182 (by decide) (V (Proc.devRef .tc main_arg3)) (stepH 182 (by decide) (V (Proc.devRef .tc main_arg0)) (V (Proc.devRef .tc main_v3)) (V (Proc.devRef .tc main_arg2)) (V (Proc.devRef .tc main_v3635))) (V (Proc.devRef .tc main_v3643)) := by
  simp only [stepOps182]
  after_results_simp
  first | exact ⟨rfl, rfl⟩ | fail "value"
/-- Step 183 of the loop: operations 4033 … 4054 of the program. -/
abbrev stepOps183 : List (HloOp τ sig (Elt F)) :=
  [ unary main_v3 main_v3664 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3655 main_v3664 main_v3665 (mulf : (⟨S4x256x16, .f32⟩ : BufTy).Contents (Elt F) → (⟨S4x256x16, .f32⟩ : BufTy).Contents (Elt F) → (⟨S4x256x16, .f32⟩ : BufTy).Contents (Elt F)),
    unary main_arg0 main_v3666 ((extractStridedSlice S4x1x256 ![0, 183, 0] · slices_S4x512x256_S4x1x256_0_183_0) : (⟨S4x512x256, .f32⟩ : BufTy).Contents (Elt F) → (⟨S4x1x256, .f32⟩ : BufTy).Contents (Elt F)),
    reshape main_v3666 main_v3667 rfl shapeCasts_S4x1x256_S4x256,
    unary main_v3667 main_v3668 (broadcastInDim S4x256x1 ![0, 1] bcast_S4x256_S4x256x1_0_1 : (⟨S4x256, .f32⟩ : BufTy).Contents (Elt F) → (⟨S4x256x1, .f32⟩ : BufTy).Contents (Elt F)),
    unary main_arg2 main_v3669 ((extractStridedSlice S4x1x16 ![0, 183, 0] · slices_S4x512x16_S4x1x16_0_183_0) : (⟨S4x512x16, .f32⟩ : BufTy).Contents (Elt F) → (⟨S4x1x16, .f32⟩ : BufTy).Contents (Elt F)),
    reshape main_v3669 main_v3670 rfl shapeCasts_S4x1x16_S4x16,
    unary main_v3670 main_v3671 (broadcastInDim S4x1x16 ![0, 2] bcast_S4x16_S4x1x16_0_2 : (⟨S4x16, .f32⟩ : BufTy).Contents (Elt F) → (⟨S4x1x16, .f32⟩ : BufTy).Contents (Elt F)),
    unary main_v3668 main_v3672 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3671 main_v3673 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3672 main_v3673 main_v3674 (mulf : (⟨S4x256x16, .f32⟩ : BufTy).Contents (Elt F) → (⟨S4x256x16, .f32⟩ : BufTy).Contents (Elt F) → (⟨S4x256x16, .f32⟩ : BufTy).Contents (Elt F)),
    binary main_v3665 main_v3674 main_v3675 (addf : (⟨S4x256x16, .f32⟩ : BufTy).Contents (Elt F) → (⟨S4x256x16, .f32⟩ : BufTy).Contents (Elt F) → (⟨S4x256x16, .f32⟩ : BufTy).Contents (Elt F)),
    unary main_arg3 main_v3676 ((extractStridedSlice S4x1x16 ![0, 183, 0] · slices_S4x512x16_S4x1x16_0_183_0) : (⟨S4x512x16, .f32⟩ : BufTy).Contents (Elt F) → (⟨S4x1x16, .f32⟩ : BufTy).Contents (Elt F)),
    reshape main_v3676 main_v3677 rfl shapeCasts_S4x1x16_S4x16,
    unary main_v3677 main_v3678 (broadcastInDim S4x1x16 ![0, 2] bcast_S4x16_S4x1x16_0_2 : (⟨S4x16, .f32⟩ : BufTy).Contents (Elt F) → (⟨S4x1x16, .f32⟩ : BufTy).Contents (Elt F)),
    unary main_v3678 main_v3679 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3675 main_v3679 main_v3680 (mulf : (⟨S4x256x16, .f32⟩ : BufTy).Contents (Elt F) → (⟨S4x256x16, .f32⟩ : BufTy).Contents (Elt F) → (⟨S4x256x16, .f32⟩ : BufTy).Contents (Elt F)),
    nullary main_cst_366 (constant S_ .f32 0x00000000#32),
    binary main_v3680 main_cst_366 main_v3681 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_367 (constantI S_ 32 183#32),
    unary main_c_367 main_v3682 (broadcastInDim S1 ![] bcast_S_S1 : (⟨S_, .i32⟩ : BufTy).Contents (Elt F) → (⟨S1, .i32⟩ : BufTy).Contents (Elt F)),
    ternary main_v3663 main_v3682 main_v3681 main_v3683 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps183_ok : (stepOps183 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step183_val (V : Valuation τ sig (Elt Ideal)) :
    after (stepOps183 (F := Ideal)) V (no_index (Proc.devRef .tc main_v3675)) = stepH 183 (by decide) (V (Proc.devRef .tc main_arg0)) (V (Proc.devRef .tc main_v3)) (V (Proc.devRef .tc main_arg2)) (V (Proc.devRef .tc main_v3655))
    ∧ after (stepOps183 (F := Ideal)) V (no_index (Proc.devRef .tc main_v3683)) = stepY 183 (by decide) (V (Proc.devRef .tc main_arg3)) (stepH 183 (by decide) (V (Proc.devRef .tc main_arg0)) (V (Proc.devRef .tc main_v3)) (V (Proc.devRef .tc main_arg2)) (V (Proc.devRef .tc main_v3655))) (V (Proc.devRef .tc main_v3663)) := by
  simp only [stepOps183]
  after_results_simp
  first | exact ⟨rfl, rfl⟩ | fail "value"
/-- Step 184 of the loop: operations 4055 … 4076 of the program. -/
abbrev stepOps184 : List (HloOp τ sig (Elt F)) :=
  [ unary main_v3 main_v3684 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3675 main_v3684 main_v3685 (mulf : (⟨S4x256x16, .f32⟩ : BufTy).Contents (Elt F) → (⟨S4x256x16, .f32⟩ : BufTy).Contents (Elt F) → (⟨S4x256x16, .f32⟩ : BufTy).Contents (Elt F)),
    unary main_arg0 main_v3686 ((extractStridedSlice S4x1x256 ![0, 184, 0] · slices_S4x512x256_S4x1x256_0_184_0) : (⟨S4x512x256, .f32⟩ : BufTy).Contents (Elt F) → (⟨S4x1x256, .f32⟩ : BufTy).Contents (Elt F)),
    reshape main_v3686 main_v3687 rfl shapeCasts_S4x1x256_S4x256,
    unary main_v3687 main_v3688 (broadcastInDim S4x256x1 ![0, 1] bcast_S4x256_S4x256x1_0_1 : (⟨S4x256, .f32⟩ : BufTy).Contents (Elt F) → (⟨S4x256x1, .f32⟩ : BufTy).Contents (Elt F)),
    unary main_arg2 main_v3689 ((extractStridedSlice S4x1x16 ![0, 184, 0] · slices_S4x512x16_S4x1x16_0_184_0) : (⟨S4x512x16, .f32⟩ : BufTy).Contents (Elt F) → (⟨S4x1x16, .f32⟩ : BufTy).Contents (Elt F)),
    reshape main_v3689 main_v3690 rfl shapeCasts_S4x1x16_S4x16,
    unary main_v3690 main_v3691 (broadcastInDim S4x1x16 ![0, 2] bcast_S4x16_S4x1x16_0_2 : (⟨S4x16, .f32⟩ : BufTy).Contents (Elt F) → (⟨S4x1x16, .f32⟩ : BufTy).Contents (Elt F)),
    unary main_v3688 main_v3692 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3691 main_v3693 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3692 main_v3693 main_v3694 (mulf : (⟨S4x256x16, .f32⟩ : BufTy).Contents (Elt F) → (⟨S4x256x16, .f32⟩ : BufTy).Contents (Elt F) → (⟨S4x256x16, .f32⟩ : BufTy).Contents (Elt F)),
    binary main_v3685 main_v3694 main_v3695 (addf : (⟨S4x256x16, .f32⟩ : BufTy).Contents (Elt F) → (⟨S4x256x16, .f32⟩ : BufTy).Contents (Elt F) → (⟨S4x256x16, .f32⟩ : BufTy).Contents (Elt F)),
    unary main_arg3 main_v3696 ((extractStridedSlice S4x1x16 ![0, 184, 0] · slices_S4x512x16_S4x1x16_0_184_0) : (⟨S4x512x16, .f32⟩ : BufTy).Contents (Elt F) → (⟨S4x1x16, .f32⟩ : BufTy).Contents (Elt F)),
    reshape main_v3696 main_v3697 rfl shapeCasts_S4x1x16_S4x16,
    unary main_v3697 main_v3698 (broadcastInDim S4x1x16 ![0, 2] bcast_S4x16_S4x1x16_0_2 : (⟨S4x16, .f32⟩ : BufTy).Contents (Elt F) → (⟨S4x1x16, .f32⟩ : BufTy).Contents (Elt F)),
    unary main_v3698 main_v3699 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3695 main_v3699 main_v3700 (mulf : (⟨S4x256x16, .f32⟩ : BufTy).Contents (Elt F) → (⟨S4x256x16, .f32⟩ : BufTy).Contents (Elt F) → (⟨S4x256x16, .f32⟩ : BufTy).Contents (Elt F)),
    nullary main_cst_368 (constant S_ .f32 0x00000000#32),
    binary main_v3700 main_cst_368 main_v3701 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_369 (constantI S_ 32 184#32),
    unary main_c_369 main_v3702 (broadcastInDim S1 ![] bcast_S_S1 : (⟨S_, .i32⟩ : BufTy).Contents (Elt F) → (⟨S1, .i32⟩ : BufTy).Contents (Elt F)),
    ternary main_v3683 main_v3702 main_v3701 main_v3703 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps184_ok : (stepOps184 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step184_val (V : Valuation τ sig (Elt Ideal)) :
    after (stepOps184 (F := Ideal)) V (no_index (Proc.devRef .tc main_v3695)) = stepH 184 (by decide) (V (Proc.devRef .tc main_arg0)) (V (Proc.devRef .tc main_v3)) (V (Proc.devRef .tc main_arg2)) (V (Proc.devRef .tc main_v3675))
    ∧ after (stepOps184 (F := Ideal)) V (no_index (Proc.devRef .tc main_v3703)) = stepY 184 (by decide) (V (Proc.devRef .tc main_arg3)) (stepH 184 (by decide) (V (Proc.devRef .tc main_arg0)) (V (Proc.devRef .tc main_v3)) (V (Proc.devRef .tc main_arg2)) (V (Proc.devRef .tc main_v3675))) (V (Proc.devRef .tc main_v3683)) := by
  simp only [stepOps184]
  after_results_simp
  first | exact ⟨rfl, rfl⟩ | fail "value"
/-- Step 185 of the loop: operations 4077 … 4098 of the program. -/
abbrev stepOps185 : List (HloOp τ sig (Elt F)) :=
  [ unary main_v3 main_v3704 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3695 main_v3704 main_v3705 (mulf : (⟨S4x256x16, .f32⟩ : BufTy).Contents (Elt F) → (⟨S4x256x16, .f32⟩ : BufTy).Contents (Elt F) → (⟨S4x256x16, .f32⟩ : BufTy).Contents (Elt F)),
    unary main_arg0 main_v3706 ((extractStridedSlice S4x1x256 ![0, 185, 0] · slices_S4x512x256_S4x1x256_0_185_0) : (⟨S4x512x256, .f32⟩ : BufTy).Contents (Elt F) → (⟨S4x1x256, .f32⟩ : BufTy).Contents (Elt F)),
    reshape main_v3706 main_v3707 rfl shapeCasts_S4x1x256_S4x256,
    unary main_v3707 main_v3708 (broadcastInDim S4x256x1 ![0, 1] bcast_S4x256_S4x256x1_0_1 : (⟨S4x256, .f32⟩ : BufTy).Contents (Elt F) → (⟨S4x256x1, .f32⟩ : BufTy).Contents (Elt F)),
    unary main_arg2 main_v3709 ((extractStridedSlice S4x1x16 ![0, 185, 0] · slices_S4x512x16_S4x1x16_0_185_0) : (⟨S4x512x16, .f32⟩ : BufTy).Contents (Elt F) → (⟨S4x1x16, .f32⟩ : BufTy).Contents (Elt F)),
    reshape main_v3709 main_v3710 rfl shapeCasts_S4x1x16_S4x16,
    unary main_v3710 main_v3711 (broadcastInDim S4x1x16 ![0, 2] bcast_S4x16_S4x1x16_0_2 : (⟨S4x16, .f32⟩ : BufTy).Contents (Elt F) → (⟨S4x1x16, .f32⟩ : BufTy).Contents (Elt F)),
    unary main_v3708 main_v3712 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3711 main_v3713 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3712 main_v3713 main_v3714 (mulf : (⟨S4x256x16, .f32⟩ : BufTy).Contents (Elt F) → (⟨S4x256x16, .f32⟩ : BufTy).Contents (Elt F) → (⟨S4x256x16, .f32⟩ : BufTy).Contents (Elt F)),
    binary main_v3705 main_v3714 main_v3715 (addf : (⟨S4x256x16, .f32⟩ : BufTy).Contents (Elt F) → (⟨S4x256x16, .f32⟩ : BufTy).Contents (Elt F) → (⟨S4x256x16, .f32⟩ : BufTy).Contents (Elt F)),
    unary main_arg3 main_v3716 ((extractStridedSlice S4x1x16 ![0, 185, 0] · slices_S4x512x16_S4x1x16_0_185_0) : (⟨S4x512x16, .f32⟩ : BufTy).Contents (Elt F) → (⟨S4x1x16, .f32⟩ : BufTy).Contents (Elt F)),
    reshape main_v3716 main_v3717 rfl shapeCasts_S4x1x16_S4x16,
    unary main_v3717 main_v3718 (broadcastInDim S4x1x16 ![0, 2] bcast_S4x16_S4x1x16_0_2 : (⟨S4x16, .f32⟩ : BufTy).Contents (Elt F) → (⟨S4x1x16, .f32⟩ : BufTy).Contents (Elt F)),
    unary main_v3718 main_v3719 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3715 main_v3719 main_v3720 (mulf : (⟨S4x256x16, .f32⟩ : BufTy).Contents (Elt F) → (⟨S4x256x16, .f32⟩ : BufTy).Contents (Elt F) → (⟨S4x256x16, .f32⟩ : BufTy).Contents (Elt F)),
    nullary main_cst_370 (constant S_ .f32 0x00000000#32),
    binary main_v3720 main_cst_370 main_v3721 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_371 (constantI S_ 32 185#32),
    unary main_c_371 main_v3722 (broadcastInDim S1 ![] bcast_S_S1 : (⟨S_, .i32⟩ : BufTy).Contents (Elt F) → (⟨S1, .i32⟩ : BufTy).Contents (Elt F)),
    ternary main_v3703 main_v3722 main_v3721 main_v3723 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps185_ok : (stepOps185 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step185_val (V : Valuation τ sig (Elt Ideal)) :
    after (stepOps185 (F := Ideal)) V (no_index (Proc.devRef .tc main_v3715)) = stepH 185 (by decide) (V (Proc.devRef .tc main_arg0)) (V (Proc.devRef .tc main_v3)) (V (Proc.devRef .tc main_arg2)) (V (Proc.devRef .tc main_v3695))
    ∧ after (stepOps185 (F := Ideal)) V (no_index (Proc.devRef .tc main_v3723)) = stepY 185 (by decide) (V (Proc.devRef .tc main_arg3)) (stepH 185 (by decide) (V (Proc.devRef .tc main_arg0)) (V (Proc.devRef .tc main_v3)) (V (Proc.devRef .tc main_arg2)) (V (Proc.devRef .tc main_v3695))) (V (Proc.devRef .tc main_v3703)) := by
  simp only [stepOps185]
  after_results_simp
  first | exact ⟨rfl, rfl⟩ | fail "value"
/-- Step 186 of the loop: operations 4099 … 4120 of the program. -/
abbrev stepOps186 : List (HloOp τ sig (Elt F)) :=
  [ unary main_v3 main_v3724 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3715 main_v3724 main_v3725 (mulf : (⟨S4x256x16, .f32⟩ : BufTy).Contents (Elt F) → (⟨S4x256x16, .f32⟩ : BufTy).Contents (Elt F) → (⟨S4x256x16, .f32⟩ : BufTy).Contents (Elt F)),
    unary main_arg0 main_v3726 ((extractStridedSlice S4x1x256 ![0, 186, 0] · slices_S4x512x256_S4x1x256_0_186_0) : (⟨S4x512x256, .f32⟩ : BufTy).Contents (Elt F) → (⟨S4x1x256, .f32⟩ : BufTy).Contents (Elt F)),
    reshape main_v3726 main_v3727 rfl shapeCasts_S4x1x256_S4x256,
    unary main_v3727 main_v3728 (broadcastInDim S4x256x1 ![0, 1] bcast_S4x256_S4x256x1_0_1 : (⟨S4x256, .f32⟩ : BufTy).Contents (Elt F) → (⟨S4x256x1, .f32⟩ : BufTy).Contents (Elt F)),
    unary main_arg2 main_v3729 ((extractStridedSlice S4x1x16 ![0, 186, 0] · slices_S4x512x16_S4x1x16_0_186_0) : (⟨S4x512x16, .f32⟩ : BufTy).Contents (Elt F) → (⟨S4x1x16, .f32⟩ : BufTy).Contents (Elt F)),
    reshape main_v3729 main_v3730 rfl shapeCasts_S4x1x16_S4x16,
    unary main_v3730 main_v3731 (broadcastInDim S4x1x16 ![0, 2] bcast_S4x16_S4x1x16_0_2 : (⟨S4x16, .f32⟩ : BufTy).Contents (Elt F) → (⟨S4x1x16, .f32⟩ : BufTy).Contents (Elt F)),
    unary main_v3728 main_v3732 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3731 main_v3733 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3732 main_v3733 main_v3734 (mulf : (⟨S4x256x16, .f32⟩ : BufTy).Contents (Elt F) → (⟨S4x256x16, .f32⟩ : BufTy).Contents (Elt F) → (⟨S4x256x16, .f32⟩ : BufTy).Contents (Elt F)),
    binary main_v3725 main_v3734 main_v3735 (addf : (⟨S4x256x16, .f32⟩ : BufTy).Contents (Elt F) → (⟨S4x256x16, .f32⟩ : BufTy).Contents (Elt F) → (⟨S4x256x16, .f32⟩ : BufTy).Contents (Elt F)),
    unary main_arg3 main_v3736 ((extractStridedSlice S4x1x16 ![0, 186, 0] · slices_S4x512x16_S4x1x16_0_186_0) : (⟨S4x512x16, .f32⟩ : BufTy).Contents (Elt F) → (⟨S4x1x16, .f32⟩ : BufTy).Contents (Elt F)),
    reshape main_v3736 main_v3737 rfl shapeCasts_S4x1x16_S4x16,
    unary main_v3737 main_v3738 (broadcastInDim S4x1x16 ![0, 2] bcast_S4x16_S4x1x16_0_2 : (⟨S4x16, .f32⟩ : BufTy).Contents (Elt F) → (⟨S4x1x16, .f32⟩ : BufTy).Contents (Elt F)),
    unary main_v3738 main_v3739 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3735 main_v3739 main_v3740 (mulf : (⟨S4x256x16, .f32⟩ : BufTy).Contents (Elt F) → (⟨S4x256x16, .f32⟩ : BufTy).Contents (Elt F) → (⟨S4x256x16, .f32⟩ : BufTy).Contents (Elt F)),
    nullary main_cst_372 (constant S_ .f32 0x00000000#32),
    binary main_v3740 main_cst_372 main_v3741 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_373 (constantI S_ 32 186#32),
    unary main_c_373 main_v3742 (broadcastInDim S1 ![] bcast_S_S1 : (⟨S_, .i32⟩ : BufTy).Contents (Elt F) → (⟨S1, .i32⟩ : BufTy).Contents (Elt F)),
    ternary main_v3723 main_v3742 main_v3741 main_v3743 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps186_ok : (stepOps186 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step186_val (V : Valuation τ sig (Elt Ideal)) :
    after (stepOps186 (F := Ideal)) V (no_index (Proc.devRef .tc main_v3735)) = stepH 186 (by decide) (V (Proc.devRef .tc main_arg0)) (V (Proc.devRef .tc main_v3)) (V (Proc.devRef .tc main_arg2)) (V (Proc.devRef .tc main_v3715))
    ∧ after (stepOps186 (F := Ideal)) V (no_index (Proc.devRef .tc main_v3743)) = stepY 186 (by decide) (V (Proc.devRef .tc main_arg3)) (stepH 186 (by decide) (V (Proc.devRef .tc main_arg0)) (V (Proc.devRef .tc main_v3)) (V (Proc.devRef .tc main_arg2)) (V (Proc.devRef .tc main_v3715))) (V (Proc.devRef .tc main_v3723)) := by
  simp only [stepOps186]
  after_results_simp
  first | exact ⟨rfl, rfl⟩ | fail "value"
/-- Step 187 of the loop: operations 4121 … 4142 of the program. -/
abbrev stepOps187 : List (HloOp τ sig (Elt F)) :=
  [ unary main_v3 main_v3744 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3735 main_v3744 main_v3745 (mulf : (⟨S4x256x16, .f32⟩ : BufTy).Contents (Elt F) → (⟨S4x256x16, .f32⟩ : BufTy).Contents (Elt F) → (⟨S4x256x16, .f32⟩ : BufTy).Contents (Elt F)),
    unary main_arg0 main_v3746 ((extractStridedSlice S4x1x256 ![0, 187, 0] · slices_S4x512x256_S4x1x256_0_187_0) : (⟨S4x512x256, .f32⟩ : BufTy).Contents (Elt F) → (⟨S4x1x256, .f32⟩ : BufTy).Contents (Elt F)),
    reshape main_v3746 main_v3747 rfl shapeCasts_S4x1x256_S4x256,
    unary main_v3747 main_v3748 (broadcastInDim S4x256x1 ![0, 1] bcast_S4x256_S4x256x1_0_1 : (⟨S4x256, .f32⟩ : BufTy).Contents (Elt F) → (⟨S4x256x1, .f32⟩ : BufTy).Contents (Elt F)),
    unary main_arg2 main_v3749 ((extractStridedSlice S4x1x16 ![0, 187, 0] · slices_S4x512x16_S4x1x16_0_187_0) : (⟨S4x512x16, .f32⟩ : BufTy).Contents (Elt F) → (⟨S4x1x16, .f32⟩ : BufTy).Contents (Elt F)),
    reshape main_v3749 main_v3750 rfl shapeCasts_S4x1x16_S4x16,
    unary main_v3750 main_v3751 (broadcastInDim S4x1x16 ![0, 2] bcast_S4x16_S4x1x16_0_2 : (⟨S4x16, .f32⟩ : BufTy).Contents (Elt F) → (⟨S4x1x16, .f32⟩ : BufTy).Contents (Elt F)),
    unary main_v3748 main_v3752 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3751 main_v3753 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3752 main_v3753 main_v3754 (mulf : (⟨S4x256x16, .f32⟩ : BufTy).Contents (Elt F) → (⟨S4x256x16, .f32⟩ : BufTy).Contents (Elt F) → (⟨S4x256x16, .f32⟩ : BufTy).Contents (Elt F)),
    binary main_v3745 main_v3754 main_v3755 (addf : (⟨S4x256x16, .f32⟩ : BufTy).Contents (Elt F) → (⟨S4x256x16, .f32⟩ : BufTy).Contents (Elt F) → (⟨S4x256x16, .f32⟩ : BufTy).Contents (Elt F)),
    unary main_arg3 main_v3756 ((extractStridedSlice S4x1x16 ![0, 187, 0] · slices_S4x512x16_S4x1x16_0_187_0) : (⟨S4x512x16, .f32⟩ : BufTy).Contents (Elt F) → (⟨S4x1x16, .f32⟩ : BufTy).Contents (Elt F)),
    reshape main_v3756 main_v3757 rfl shapeCasts_S4x1x16_S4x16,
    unary main_v3757 main_v3758 (broadcastInDim S4x1x16 ![0, 2] bcast_S4x16_S4x1x16_0_2 : (⟨S4x16, .f32⟩ : BufTy).Contents (Elt F) → (⟨S4x1x16, .f32⟩ : BufTy).Contents (Elt F)),
    unary main_v3758 main_v3759 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3755 main_v3759 main_v3760 (mulf : (⟨S4x256x16, .f32⟩ : BufTy).Contents (Elt F) → (⟨S4x256x16, .f32⟩ : BufTy).Contents (Elt F) → (⟨S4x256x16, .f32⟩ : BufTy).Contents (Elt F)),
    nullary main_cst_374 (constant S_ .f32 0x00000000#32),
    binary main_v3760 main_cst_374 main_v3761 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_375 (constantI S_ 32 187#32),
    unary main_c_375 main_v3762 (broadcastInDim S1 ![] bcast_S_S1 : (⟨S_, .i32⟩ : BufTy).Contents (Elt F) → (⟨S1, .i32⟩ : BufTy).Contents (Elt F)),
    ternary main_v3743 main_v3762 main_v3761 main_v3763 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps187_ok : (stepOps187 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step187_val (V : Valuation τ sig (Elt Ideal)) :
    after (stepOps187 (F := Ideal)) V (no_index (Proc.devRef .tc main_v3755)) = stepH 187 (by decide) (V (Proc.devRef .tc main_arg0)) (V (Proc.devRef .tc main_v3)) (V (Proc.devRef .tc main_arg2)) (V (Proc.devRef .tc main_v3735))
    ∧ after (stepOps187 (F := Ideal)) V (no_index (Proc.devRef .tc main_v3763)) = stepY 187 (by decide) (V (Proc.devRef .tc main_arg3)) (stepH 187 (by decide) (V (Proc.devRef .tc main_arg0)) (V (Proc.devRef .tc main_v3)) (V (Proc.devRef .tc main_arg2)) (V (Proc.devRef .tc main_v3735))) (V (Proc.devRef .tc main_v3743)) := by
  simp only [stepOps187]
  after_results_simp
  first | exact ⟨rfl, rfl⟩ | fail "value"
/-- Step 188 of the loop: operations 4143 … 4164 of the program. -/
abbrev stepOps188 : List (HloOp τ sig (Elt F)) :=
  [ unary main_v3 main_v3764 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3755 main_v3764 main_v3765 (mulf : (⟨S4x256x16, .f32⟩ : BufTy).Contents (Elt F) → (⟨S4x256x16, .f32⟩ : BufTy).Contents (Elt F) → (⟨S4x256x16, .f32⟩ : BufTy).Contents (Elt F)),
    unary main_arg0 main_v3766 ((extractStridedSlice S4x1x256 ![0, 188, 0] · slices_S4x512x256_S4x1x256_0_188_0) : (⟨S4x512x256, .f32⟩ : BufTy).Contents (Elt F) → (⟨S4x1x256, .f32⟩ : BufTy).Contents (Elt F)),
    reshape main_v3766 main_v3767 rfl shapeCasts_S4x1x256_S4x256,
    unary main_v3767 main_v3768 (broadcastInDim S4x256x1 ![0, 1] bcast_S4x256_S4x256x1_0_1 : (⟨S4x256, .f32⟩ : BufTy).Contents (Elt F) → (⟨S4x256x1, .f32⟩ : BufTy).Contents (Elt F)),
    unary main_arg2 main_v3769 ((extractStridedSlice S4x1x16 ![0, 188, 0] · slices_S4x512x16_S4x1x16_0_188_0) : (⟨S4x512x16, .f32⟩ : BufTy).Contents (Elt F) → (⟨S4x1x16, .f32⟩ : BufTy).Contents (Elt F)),
    reshape main_v3769 main_v3770 rfl shapeCasts_S4x1x16_S4x16,
    unary main_v3770 main_v3771 (broadcastInDim S4x1x16 ![0, 2] bcast_S4x16_S4x1x16_0_2 : (⟨S4x16, .f32⟩ : BufTy).Contents (Elt F) → (⟨S4x1x16, .f32⟩ : BufTy).Contents (Elt F)),
    unary main_v3768 main_v3772 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3771 main_v3773 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3772 main_v3773 main_v3774 (mulf : (⟨S4x256x16, .f32⟩ : BufTy).Contents (Elt F) → (⟨S4x256x16, .f32⟩ : BufTy).Contents (Elt F) → (⟨S4x256x16, .f32⟩ : BufTy).Contents (Elt F)),
    binary main_v3765 main_v3774 main_v3775 (addf : (⟨S4x256x16, .f32⟩ : BufTy).Contents (Elt F) → (⟨S4x256x16, .f32⟩ : BufTy).Contents (Elt F) → (⟨S4x256x16, .f32⟩ : BufTy).Contents (Elt F)),
    unary main_arg3 main_v3776 ((extractStridedSlice S4x1x16 ![0, 188, 0] · slices_S4x512x16_S4x1x16_0_188_0) : (⟨S4x512x16, .f32⟩ : BufTy).Contents (Elt F) → (⟨S4x1x16, .f32⟩ : BufTy).Contents (Elt F)),
    reshape main_v3776 main_v3777 rfl shapeCasts_S4x1x16_S4x16,
    unary main_v3777 main_v3778 (broadcastInDim S4x1x16 ![0, 2] bcast_S4x16_S4x1x16_0_2 : (⟨S4x16, .f32⟩ : BufTy).Contents (Elt F) → (⟨S4x1x16, .f32⟩ : BufTy).Contents (Elt F)),
    unary main_v3778 main_v3779 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3775 main_v3779 main_v3780 (mulf : (⟨S4x256x16, .f32⟩ : BufTy).Contents (Elt F) → (⟨S4x256x16, .f32⟩ : BufTy).Contents (Elt F) → (⟨S4x256x16, .f32⟩ : BufTy).Contents (Elt F)),
    nullary main_cst_376 (constant S_ .f32 0x00000000#32),
    binary main_v3780 main_cst_376 main_v3781 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_377 (constantI S_ 32 188#32),
    unary main_c_377 main_v3782 (broadcastInDim S1 ![] bcast_S_S1 : (⟨S_, .i32⟩ : BufTy).Contents (Elt F) → (⟨S1, .i32⟩ : BufTy).Contents (Elt F)),
    ternary main_v3763 main_v3782 main_v3781 main_v3783 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps188_ok : (stepOps188 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step188_val (V : Valuation τ sig (Elt Ideal)) :
    after (stepOps188 (F := Ideal)) V (no_index (Proc.devRef .tc main_v3775)) = stepH 188 (by decide) (V (Proc.devRef .tc main_arg0)) (V (Proc.devRef .tc main_v3)) (V (Proc.devRef .tc main_arg2)) (V (Proc.devRef .tc main_v3755))
    ∧ after (stepOps188 (F := Ideal)) V (no_index (Proc.devRef .tc main_v3783)) = stepY 188 (by decide) (V (Proc.devRef .tc main_arg3)) (stepH 188 (by decide) (V (Proc.devRef .tc main_arg0)) (V (Proc.devRef .tc main_v3)) (V (Proc.devRef .tc main_arg2)) (V (Proc.devRef .tc main_v3755))) (V (Proc.devRef .tc main_v3763)) := by
  simp only [stepOps188]
  after_results_simp
  first | exact ⟨rfl, rfl⟩ | fail "value"
/-- Step 189 of the loop: operations 4165 … 4186 of the program. -/
abbrev stepOps189 : List (HloOp τ sig (Elt F)) :=
  [ unary main_v3 main_v3784 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3775 main_v3784 main_v3785 (mulf : (⟨S4x256x16, .f32⟩ : BufTy).Contents (Elt F) → (⟨S4x256x16, .f32⟩ : BufTy).Contents (Elt F) → (⟨S4x256x16, .f32⟩ : BufTy).Contents (Elt F)),
    unary main_arg0 main_v3786 ((extractStridedSlice S4x1x256 ![0, 189, 0] · slices_S4x512x256_S4x1x256_0_189_0) : (⟨S4x512x256, .f32⟩ : BufTy).Contents (Elt F) → (⟨S4x1x256, .f32⟩ : BufTy).Contents (Elt F)),
    reshape main_v3786 main_v3787 rfl shapeCasts_S4x1x256_S4x256,
    unary main_v3787 main_v3788 (broadcastInDim S4x256x1 ![0, 1] bcast_S4x256_S4x256x1_0_1 : (⟨S4x256, .f32⟩ : BufTy).Contents (Elt F) → (⟨S4x256x1, .f32⟩ : BufTy).Contents (Elt F)),
    unary main_arg2 main_v3789 ((extractStridedSlice S4x1x16 ![0, 189, 0] · slices_S4x512x16_S4x1x16_0_189_0) : (⟨S4x512x16, .f32⟩ : BufTy).Contents (Elt F) → (⟨S4x1x16, .f32⟩ : BufTy).Contents (Elt F)),
    reshape main_v3789 main_v3790 rfl shapeCasts_S4x1x16_S4x16,
    unary main_v3790 main_v3791 (broadcastInDim S4x1x16 ![0, 2] bcast_S4x16_S4x1x16_0_2 : (⟨S4x16, .f32⟩ : BufTy).Contents (Elt F) → (⟨S4x1x16, .f32⟩ : BufTy).Contents (Elt F)),
    unary main_v3788 main_v3792 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3791 main_v3793 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3792 main_v3793 main_v3794 (mulf : (⟨S4x256x16, .f32⟩ : BufTy).Contents (Elt F) → (⟨S4x256x16, .f32⟩ : BufTy).Contents (Elt F) → (⟨S4x256x16, .f32⟩ : BufTy).Contents (Elt F)),
    binary main_v3785 main_v3794 main_v3795 (addf : (⟨S4x256x16, .f32⟩ : BufTy).Contents (Elt F) → (⟨S4x256x16, .f32⟩ : BufTy).Contents (Elt F) → (⟨S4x256x16, .f32⟩ : BufTy).Contents (Elt F)),
    unary main_arg3 main_v3796 ((extractStridedSlice S4x1x16 ![0, 189, 0] · slices_S4x512x16_S4x1x16_0_189_0) : (⟨S4x512x16, .f32⟩ : BufTy).Contents (Elt F) → (⟨S4x1x16, .f32⟩ : BufTy).Contents (Elt F)),
    reshape main_v3796 main_v3797 rfl shapeCasts_S4x1x16_S4x16,
    unary main_v3797 main_v3798 (broadcastInDim S4x1x16 ![0, 2] bcast_S4x16_S4x1x16_0_2 : (⟨S4x16, .f32⟩ : BufTy).Contents (Elt F) → (⟨S4x1x16, .f32⟩ : BufTy).Contents (Elt F)),
    unary main_v3798 main_v3799 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3795 main_v3799 main_v3800 (mulf : (⟨S4x256x16, .f32⟩ : BufTy).Contents (Elt F) → (⟨S4x256x16, .f32⟩ : BufTy).Contents (Elt F) → (⟨S4x256x16, .f32⟩ : BufTy).Contents (Elt F)),
    nullary main_cst_378 (constant S_ .f32 0x00000000#32),
    binary main_v3800 main_cst_378 main_v3801 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_379 (constantI S_ 32 189#32),
    unary main_c_379 main_v3802 (broadcastInDim S1 ![] bcast_S_S1 : (⟨S_, .i32⟩ : BufTy).Contents (Elt F) → (⟨S1, .i32⟩ : BufTy).Contents (Elt F)),
    ternary main_v3783 main_v3802 main_v3801 main_v3803 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps189_ok : (stepOps189 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step189_val (V : Valuation τ sig (Elt Ideal)) :
    after (stepOps189 (F := Ideal)) V (no_index (Proc.devRef .tc main_v3795)) = stepH 189 (by decide) (V (Proc.devRef .tc main_arg0)) (V (Proc.devRef .tc main_v3)) (V (Proc.devRef .tc main_arg2)) (V (Proc.devRef .tc main_v3775))
    ∧ after (stepOps189 (F := Ideal)) V (no_index (Proc.devRef .tc main_v3803)) = stepY 189 (by decide) (V (Proc.devRef .tc main_arg3)) (stepH 189 (by decide) (V (Proc.devRef .tc main_arg0)) (V (Proc.devRef .tc main_v3)) (V (Proc.devRef .tc main_arg2)) (V (Proc.devRef .tc main_v3775))) (V (Proc.devRef .tc main_v3783)) := by
  simp only [stepOps189]
  after_results_simp
  first | exact ⟨rfl, rfl⟩ | fail "value"
/-- Step 190 of the loop: operations 4187 … 4208 of the program. -/
abbrev stepOps190 : List (HloOp τ sig (Elt F)) :=
  [ unary main_v3 main_v3804 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3795 main_v3804 main_v3805 (mulf : (⟨S4x256x16, .f32⟩ : BufTy).Contents (Elt F) → (⟨S4x256x16, .f32⟩ : BufTy).Contents (Elt F) → (⟨S4x256x16, .f32⟩ : BufTy).Contents (Elt F)),
    unary main_arg0 main_v3806 ((extractStridedSlice S4x1x256 ![0, 190, 0] · slices_S4x512x256_S4x1x256_0_190_0) : (⟨S4x512x256, .f32⟩ : BufTy).Contents (Elt F) → (⟨S4x1x256, .f32⟩ : BufTy).Contents (Elt F)),
    reshape main_v3806 main_v3807 rfl shapeCasts_S4x1x256_S4x256,
    unary main_v3807 main_v3808 (broadcastInDim S4x256x1 ![0, 1] bcast_S4x256_S4x256x1_0_1 : (⟨S4x256, .f32⟩ : BufTy).Contents (Elt F) → (⟨S4x256x1, .f32⟩ : BufTy).Contents (Elt F)),
    unary main_arg2 main_v3809 ((extractStridedSlice S4x1x16 ![0, 190, 0] · slices_S4x512x16_S4x1x16_0_190_0) : (⟨S4x512x16, .f32⟩ : BufTy).Contents (Elt F) → (⟨S4x1x16, .f32⟩ : BufTy).Contents (Elt F)),
    reshape main_v3809 main_v3810 rfl shapeCasts_S4x1x16_S4x16,
    unary main_v3810 main_v3811 (broadcastInDim S4x1x16 ![0, 2] bcast_S4x16_S4x1x16_0_2 : (⟨S4x16, .f32⟩ : BufTy).Contents (Elt F) → (⟨S4x1x16, .f32⟩ : BufTy).Contents (Elt F)),
    unary main_v3808 main_v3812 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3811 main_v3813 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3812 main_v3813 main_v3814 (mulf : (⟨S4x256x16, .f32⟩ : BufTy).Contents (Elt F) → (⟨S4x256x16, .f32⟩ : BufTy).Contents (Elt F) → (⟨S4x256x16, .f32⟩ : BufTy).Contents (Elt F)),
    binary main_v3805 main_v3814 main_v3815 (addf : (⟨S4x256x16, .f32⟩ : BufTy).Contents (Elt F) → (⟨S4x256x16, .f32⟩ : BufTy).Contents (Elt F) → (⟨S4x256x16, .f32⟩ : BufTy).Contents (Elt F)),
    unary main_arg3 main_v3816 ((extractStridedSlice S4x1x16 ![0, 190, 0] · slices_S4x512x16_S4x1x16_0_190_0) : (⟨S4x512x16, .f32⟩ : BufTy).Contents (Elt F) → (⟨S4x1x16, .f32⟩ : BufTy).Contents (Elt F)),
    reshape main_v3816 main_v3817 rfl shapeCasts_S4x1x16_S4x16,
    unary main_v3817 main_v3818 (broadcastInDim S4x1x16 ![0, 2] bcast_S4x16_S4x1x16_0_2 : (⟨S4x16, .f32⟩ : BufTy).Contents (Elt F) → (⟨S4x1x16, .f32⟩ : BufTy).Contents (Elt F)),
    unary main_v3818 main_v3819 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3815 main_v3819 main_v3820 (mulf : (⟨S4x256x16, .f32⟩ : BufTy).Contents (Elt F) → (⟨S4x256x16, .f32⟩ : BufTy).Contents (Elt F) → (⟨S4x256x16, .f32⟩ : BufTy).Contents (Elt F)),
    nullary main_cst_380 (constant S_ .f32 0x00000000#32),
    binary main_v3820 main_cst_380 main_v3821 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_381 (constantI S_ 32 190#32),
    unary main_c_381 main_v3822 (broadcastInDim S1 ![] bcast_S_S1 : (⟨S_, .i32⟩ : BufTy).Contents (Elt F) → (⟨S1, .i32⟩ : BufTy).Contents (Elt F)),
    ternary main_v3803 main_v3822 main_v3821 main_v3823 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps190_ok : (stepOps190 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step190_val (V : Valuation τ sig (Elt Ideal)) :
    after (stepOps190 (F := Ideal)) V (no_index (Proc.devRef .tc main_v3815)) = stepH 190 (by decide) (V (Proc.devRef .tc main_arg0)) (V (Proc.devRef .tc main_v3)) (V (Proc.devRef .tc main_arg2)) (V (Proc.devRef .tc main_v3795))
    ∧ after (stepOps190 (F := Ideal)) V (no_index (Proc.devRef .tc main_v3823)) = stepY 190 (by decide) (V (Proc.devRef .tc main_arg3)) (stepH 190 (by decide) (V (Proc.devRef .tc main_arg0)) (V (Proc.devRef .tc main_v3)) (V (Proc.devRef .tc main_arg2)) (V (Proc.devRef .tc main_v3795))) (V (Proc.devRef .tc main_v3803)) := by
  simp only [stepOps190]
  after_results_simp
  first | exact ⟨rfl, rfl⟩ | fail "value"
/-- Step 191 of the loop: operations 4209 … 4230 of the program. -/
abbrev stepOps191 : List (HloOp τ sig (Elt F)) :=
  [ unary main_v3 main_v3824 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3815 main_v3824 main_v3825 (mulf : (⟨S4x256x16, .f32⟩ : BufTy).Contents (Elt F) → (⟨S4x256x16, .f32⟩ : BufTy).Contents (Elt F) → (⟨S4x256x16, .f32⟩ : BufTy).Contents (Elt F)),
    unary main_arg0 main_v3826 ((extractStridedSlice S4x1x256 ![0, 191, 0] · slices_S4x512x256_S4x1x256_0_191_0) : (⟨S4x512x256, .f32⟩ : BufTy).Contents (Elt F) → (⟨S4x1x256, .f32⟩ : BufTy).Contents (Elt F)),
    reshape main_v3826 main_v3827 rfl shapeCasts_S4x1x256_S4x256,
    unary main_v3827 main_v3828 (broadcastInDim S4x256x1 ![0, 1] bcast_S4x256_S4x256x1_0_1 : (⟨S4x256, .f32⟩ : BufTy).Contents (Elt F) → (⟨S4x256x1, .f32⟩ : BufTy).Contents (Elt F)),
    unary main_arg2 main_v3829 ((extractStridedSlice S4x1x16 ![0, 191, 0] · slices_S4x512x16_S4x1x16_0_191_0) : (⟨S4x512x16, .f32⟩ : BufTy).Contents (Elt F) → (⟨S4x1x16, .f32⟩ : BufTy).Contents (Elt F)),
    reshape main_v3829 main_v3830 rfl shapeCasts_S4x1x16_S4x16,
    unary main_v3830 main_v3831 (broadcastInDim S4x1x16 ![0, 2] bcast_S4x16_S4x1x16_0_2 : (⟨S4x16, .f32⟩ : BufTy).Contents (Elt F) → (⟨S4x1x16, .f32⟩ : BufTy).Contents (Elt F)),
    unary main_v3828 main_v3832 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3831 main_v3833 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3832 main_v3833 main_v3834 (mulf : (⟨S4x256x16, .f32⟩ : BufTy).Contents (Elt F) → (⟨S4x256x16, .f32⟩ : BufTy).Contents (Elt F) → (⟨S4x256x16, .f32⟩ : BufTy).Contents (Elt F)),
    binary main_v3825 main_v3834 main_v3835 (addf : (⟨S4x256x16, .f32⟩ : BufTy).Contents (Elt F) → (⟨S4x256x16, .f32⟩ : BufTy).Contents (Elt F) → (⟨S4x256x16, .f32⟩ : BufTy).Contents (Elt F)),
    unary main_arg3 main_v3836 ((extractStridedSlice S4x1x16 ![0, 191, 0] · slices_S4x512x16_S4x1x16_0_191_0) : (⟨S4x512x16, .f32⟩ : BufTy).Contents (Elt F) → (⟨S4x1x16, .f32⟩ : BufTy).Contents (Elt F)),
    reshape main_v3836 main_v3837 rfl shapeCasts_S4x1x16_S4x16,
    unary main_v3837 main_v3838 (broadcastInDim S4x1x16 ![0, 2] bcast_S4x16_S4x1x16_0_2 : (⟨S4x16, .f32⟩ : BufTy).Contents (Elt F) → (⟨S4x1x16, .f32⟩ : BufTy).Contents (Elt F)),
    unary main_v3838 main_v3839 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3835 main_v3839 main_v3840 (mulf : (⟨S4x256x16, .f32⟩ : BufTy).Contents (Elt F) → (⟨S4x256x16, .f32⟩ : BufTy).Contents (Elt F) → (⟨S4x256x16, .f32⟩ : BufTy).Contents (Elt F)),
    nullary main_cst_382 (constant S_ .f32 0x00000000#32),
    binary main_v3840 main_cst_382 main_v3841 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_383 (constantI S_ 32 191#32),
    unary main_c_383 main_v3842 (broadcastInDim S1 ![] bcast_S_S1 : (⟨S_, .i32⟩ : BufTy).Contents (Elt F) → (⟨S1, .i32⟩ : BufTy).Contents (Elt F)),
    ternary main_v3823 main_v3842 main_v3841 main_v3843 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps191_ok : (stepOps191 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step191_val (V : Valuation τ sig (Elt Ideal)) :
    after (stepOps191 (F := Ideal)) V (no_index (Proc.devRef .tc main_v3835)) = stepH 191 (by decide) (V (Proc.devRef .tc main_arg0)) (V (Proc.devRef .tc main_v3)) (V (Proc.devRef .tc main_arg2)) (V (Proc.devRef .tc main_v3815))
    ∧ after (stepOps191 (F := Ideal)) V (no_index (Proc.devRef .tc main_v3843)) = stepY 191 (by decide) (V (Proc.devRef .tc main_arg3)) (stepH 191 (by decide) (V (Proc.devRef .tc main_arg0)) (V (Proc.devRef .tc main_v3)) (V (Proc.devRef .tc main_arg2)) (V (Proc.devRef .tc main_v3815))) (V (Proc.devRef .tc main_v3823)) := by
  simp only [stepOps191]
  after_results_simp
  first | exact ⟨rfl, rfl⟩ | fail "value"

end Cert.ReferenceIdeal.RefRun

end
-- ==== Proof.RefTableStep12.lean ====
/-
  Steps 192 … 207 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 192 of the loop: operations 4231 … 4252 of the program. -/
abbrev stepOps192 : List (HloOp τ sig (Elt F)) :=
  [ unary main_v3 main_v3844 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3835 main_v3844 main_v3845 (mulf : (⟨S4x256x16, .f32⟩ : BufTy).Contents (Elt F) → (⟨S4x256x16, .f32⟩ : BufTy).Contents (Elt F) → (⟨S4x256x16, .f32⟩ : BufTy).Contents (Elt F)),
    unary main_arg0 main_v3846 ((extractStridedSlice S4x1x256 ![0, 192, 0] · slices_S4x512x256_S4x1x256_0_192_0) : (⟨S4x512x256, .f32⟩ : BufTy).Contents (Elt F) → (⟨S4x1x256, .f32⟩ : BufTy).Contents (Elt F)),
    reshape main_v3846 main_v3847 rfl shapeCasts_S4x1x256_S4x256,
    unary main_v3847 main_v3848 (broadcastInDim S4x256x1 ![0, 1] bcast_S4x256_S4x256x1_0_1 : (⟨S4x256, .f32⟩ : BufTy).Contents (Elt F) → (⟨S4x256x1, .f32⟩ : BufTy).Contents (Elt F)),
    unary main_arg2 main_v3849 ((extractStridedSlice S4x1x16 ![0, 192, 0] · slices_S4x512x16_S4x1x16_0_192_0) : (⟨S4x512x16, .f32⟩ : BufTy).Contents (Elt F) → (⟨S4x1x16, .f32⟩ : BufTy).Contents (Elt F)),
    reshape main_v3849 main_v3850 rfl shapeCasts_S4x1x16_S4x16,
    unary main_v3850 main_v3851 (broadcastInDim S4x1x16 ![0, 2] bcast_S4x16_S4x1x16_0_2 : (⟨S4x16, .f32⟩ : BufTy).Contents (Elt F) → (⟨S4x1x16, .f32⟩ : BufTy).Contents (Elt F)),
    unary main_v3848 main_v3852 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3851 main_v3853 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3852 main_v3853 main_v3854 (mulf : (⟨S4x256x16, .f32⟩ : BufTy).Contents (Elt F) → (⟨S4x256x16, .f32⟩ : BufTy).Contents (Elt F) → (⟨S4x256x16, .f32⟩ : BufTy).Contents (Elt F)),
    binary main_v3845 main_v3854 main_v3855 (addf : (⟨S4x256x16, .f32⟩ : BufTy).Contents (Elt F) → (⟨S4x256x16, .f32⟩ : BufTy).Contents (Elt F) → (⟨S4x256x16, .f32⟩ : BufTy).Contents (Elt F)),
    unary main_arg3 main_v3856 ((extractStridedSlice S4x1x16 ![0, 192, 0] · slices_S4x512x16_S4x1x16_0_192_0) : (⟨S4x512x16, .f32⟩ : BufTy).Contents (Elt F) → (⟨S4x1x16, .f32⟩ : BufTy).Contents (Elt F)),
    reshape main_v3856 main_v3857 rfl shapeCasts_S4x1x16_S4x16,
    unary main_v3857 main_v3858 (broadcastInDim S4x1x16 ![0, 2] bcast_S4x16_S4x1x16_0_2 : (⟨S4x16, .f32⟩ : BufTy).Contents (Elt F) → (⟨S4x1x16, .f32⟩ : BufTy).Contents (Elt F)),
    unary main_v3858 main_v3859 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3855 main_v3859 main_v3860 (mulf : (⟨S4x256x16, .f32⟩ : BufTy).Contents (Elt F) → (⟨S4x256x16, .f32⟩ : BufTy).Contents (Elt F) → (⟨S4x256x16, .f32⟩ : BufTy).Contents (Elt F)),
    nullary main_cst_384 (constant S_ .f32 0x00000000#32),
    binary main_v3860 main_cst_384 main_v3861 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_385 (constantI S_ 32 192#32),
    unary main_c_385 main_v3862 (broadcastInDim S1 ![] bcast_S_S1 : (⟨S_, .i32⟩ : BufTy).Contents (Elt F) → (⟨S1, .i32⟩ : BufTy).Contents (Elt F)),
    ternary main_v3843 main_v3862 main_v3861 main_v3863 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps192_ok : (stepOps192 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step192_val (V : Valuation τ sig (Elt Ideal)) :
    after (stepOps192 (F := Ideal)) V (no_index (Proc.devRef .tc main_v3855)) = stepH 192 (by decide) (V (Proc.devRef .tc main_arg0)) (V (Proc.devRef .tc main_v3)) (V (Proc.devRef .tc main_arg2)) (V (Proc.devRef .tc main_v3835))
    ∧ after (stepOps192 (F := Ideal)) V (no_index (Proc.devRef .tc main_v3863)) = stepY 192 (by decide) (V (Proc.devRef .tc main_arg3)) (stepH 192 (by decide) (V (Proc.devRef .tc main_arg0)) (V (Proc.devRef .tc main_v3)) (V (Proc.devRef .tc main_arg2)) (V (Proc.devRef .tc main_v3835))) (V (Proc.devRef .tc main_v3843)) := by
  simp only [stepOps192]
  after_results_simp
  first | exact ⟨rfl, rfl⟩ | fail "value"
/-- Step 193 of the loop: operations 4253 … 4274 of the program. -/
abbrev stepOps193 : List (HloOp τ sig (Elt F)) :=
  [ unary main_v3 main_v3864 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3855 main_v3864 main_v3865 (mulf : (⟨S4x256x16, .f32⟩ : BufTy).Contents (Elt F) → (⟨S4x256x16, .f32⟩ : BufTy).Contents (Elt F) → (⟨S4x256x16, .f32⟩ : BufTy).Contents (Elt F)),
    unary main_arg0 main_v3866 ((extractStridedSlice S4x1x256 ![0, 193, 0] · slices_S4x512x256_S4x1x256_0_193_0) : (⟨S4x512x256, .f32⟩ : BufTy).Contents (Elt F) → (⟨S4x1x256, .f32⟩ : BufTy).Contents (Elt F)),
    reshape main_v3866 main_v3867 rfl shapeCasts_S4x1x256_S4x256,
    unary main_v3867 main_v3868 (broadcastInDim S4x256x1 ![0, 1] bcast_S4x256_S4x256x1_0_1 : (⟨S4x256, .f32⟩ : BufTy).Contents (Elt F) → (⟨S4x256x1, .f32⟩ : BufTy).Contents (Elt F)),
    unary main_arg2 main_v3869 ((extractStridedSlice S4x1x16 ![0, 193, 0] · slices_S4x512x16_S4x1x16_0_193_0) : (⟨S4x512x16, .f32⟩ : BufTy).Contents (Elt F) → (⟨S4x1x16, .f32⟩ : BufTy).Contents (Elt F)),
    reshape main_v3869 main_v3870 rfl shapeCasts_S4x1x16_S4x16,
    unary main_v3870 main_v3871 (broadcastInDim S4x1x16 ![0, 2] bcast_S4x16_S4x1x16_0_2 : (⟨S4x16, .f32⟩ : BufTy).Contents (Elt F) → (⟨S4x1x16, .f32⟩ : BufTy).Contents (Elt F)),
    unary main_v3868 main_v3872 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3871 main_v3873 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3872 main_v3873 main_v3874 (mulf : (⟨S4x256x16, .f32⟩ : BufTy).Contents (Elt F) → (⟨S4x256x16, .f32⟩ : BufTy).Contents (Elt F) → (⟨S4x256x16, .f32⟩ : BufTy).Contents (Elt F)),
    binary main_v3865 main_v3874 main_v3875 (addf : (⟨S4x256x16, .f32⟩ : BufTy).Contents (Elt F) → (⟨S4x256x16, .f32⟩ : BufTy).Contents (Elt F) → (⟨S4x256x16, .f32⟩ : BufTy).Contents (Elt F)),
    unary main_arg3 main_v3876 ((extractStridedSlice S4x1x16 ![0, 193, 0] · slices_S4x512x16_S4x1x16_0_193_0) : (⟨S4x512x16, .f32⟩ : BufTy).Contents (Elt F) → (⟨S4x1x16, .f32⟩ : BufTy).Contents (Elt F)),
    reshape main_v3876 main_v3877 rfl shapeCasts_S4x1x16_S4x16,
    unary main_v3877 main_v3878 (broadcastInDim S4x1x16 ![0, 2] bcast_S4x16_S4x1x16_0_2 : (⟨S4x16, .f32⟩ : BufTy).Contents (Elt F) → (⟨S4x1x16, .f32⟩ : BufTy).Contents (Elt F)),
    unary main_v3878 main_v3879 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3875 main_v3879 main_v3880 (mulf : (⟨S4x256x16, .f32⟩ : BufTy).Contents (Elt F) → (⟨S4x256x16, .f32⟩ : BufTy).Contents (Elt F) → (⟨S4x256x16, .f32⟩ : BufTy).Contents (Elt F)),
    nullary main_cst_386 (constant S_ .f32 0x00000000#32),
    binary main_v3880 main_cst_386 main_v3881 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_387 (constantI S_ 32 193#32),
    unary main_c_387 main_v3882 (broadcastInDim S1 ![] bcast_S_S1 : (⟨S_, .i32⟩ : BufTy).Contents (Elt F) → (⟨S1, .i32⟩ : BufTy).Contents (Elt F)),
    ternary main_v3863 main_v3882 main_v3881 main_v3883 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps193_ok : (stepOps193 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step193_val (V : Valuation τ sig (Elt Ideal)) :
    after (stepOps193 (F := Ideal)) V (no_index (Proc.devRef .tc main_v3875)) = stepH 193 (by decide) (V (Proc.devRef .tc main_arg0)) (V (Proc.devRef .tc main_v3)) (V (Proc.devRef .tc main_arg2)) (V (Proc.devRef .tc main_v3855))
    ∧ after (stepOps193 (F := Ideal)) V (no_index (Proc.devRef .tc main_v3883)) = stepY 193 (by decide) (V (Proc.devRef .tc main_arg3)) (stepH 193 (by decide) (V (Proc.devRef .tc main_arg0)) (V (Proc.devRef .tc main_v3)) (V (Proc.devRef .tc main_arg2)) (V (Proc.devRef .tc main_v3855))) (V (Proc.devRef .tc main_v3863)) := by
  simp only [stepOps193]
  after_results_simp
  first | exact ⟨rfl, rfl⟩ | fail "value"
/-- Step 194 of the loop: operations 4275 … 4296 of the program. -/
abbrev stepOps194 : List (HloOp τ sig (Elt F)) :=
  [ unary main_v3 main_v3884 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3875 main_v3884 main_v3885 (mulf : (⟨S4x256x16, .f32⟩ : BufTy).Contents (Elt F) → (⟨S4x256x16, .f32⟩ : BufTy).Contents (Elt F) → (⟨S4x256x16, .f32⟩ : BufTy).Contents (Elt F)),
    unary main_arg0 main_v3886 ((extractStridedSlice S4x1x256 ![0, 194, 0] · slices_S4x512x256_S4x1x256_0_194_0) : (⟨S4x512x256, .f32⟩ : BufTy).Contents (Elt F) → (⟨S4x1x256, .f32⟩ : BufTy).Contents (Elt F)),
    reshape main_v3886 main_v3887 rfl shapeCasts_S4x1x256_S4x256,
    unary main_v3887 main_v3888 (broadcastInDim S4x256x1 ![0, 1] bcast_S4x256_S4x256x1_0_1 : (⟨S4x256, .f32⟩ : BufTy).Contents (Elt F) → (⟨S4x256x1, .f32⟩ : BufTy).Contents (Elt F)),
    unary main_arg2 main_v3889 ((extractStridedSlice S4x1x16 ![0, 194, 0] · slices_S4x512x16_S4x1x16_0_194_0) : (⟨S4x512x16, .f32⟩ : BufTy).Contents (Elt F) → (⟨S4x1x16, .f32⟩ : BufTy).Contents (Elt F)),
    reshape main_v3889 main_v3890 rfl shapeCasts_S4x1x16_S4x16,
    unary main_v3890 main_v3891 (broadcastInDim S4x1x16 ![0, 2] bcast_S4x16_S4x1x16_0_2 : (⟨S4x16, .f32⟩ : BufTy).Contents (Elt F) → (⟨S4x1x16, .f32⟩ : BufTy).Contents (Elt F)),
    unary main_v3888 main_v3892 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3891 main_v3893 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3892 main_v3893 main_v3894 (mulf : (⟨S4x256x16, .f32⟩ : BufTy).Contents (Elt F) → (⟨S4x256x16, .f32⟩ : BufTy).Contents (Elt F) → (⟨S4x256x16, .f32⟩ : BufTy).Contents (Elt F)),
    binary main_v3885 main_v3894 main_v3895 (addf : (⟨S4x256x16, .f32⟩ : BufTy).Contents (Elt F) → (⟨S4x256x16, .f32⟩ : BufTy).Contents (Elt F) → (⟨S4x256x16, .f32⟩ : BufTy).Contents (Elt F)),
    unary main_arg3 main_v3896 ((extractStridedSlice S4x1x16 ![0, 194, 0] · slices_S4x512x16_S4x1x16_0_194_0) : (⟨S4x512x16, .f32⟩ : BufTy).Contents (Elt F) → (⟨S4x1x16, .f32⟩ : BufTy).Contents (Elt F)),
    reshape main_v3896 main_v3897 rfl shapeCasts_S4x1x16_S4x16,
    unary main_v3897 main_v3898 (broadcastInDim S4x1x16 ![0, 2] bcast_S4x16_S4x1x16_0_2 : (⟨S4x16, .f32⟩ : BufTy).Contents (Elt F) → (⟨S4x1x16, .f32⟩ : BufTy).Contents (Elt F)),
    unary main_v3898 main_v3899 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3895 main_v3899 main_v3900 (mulf : (⟨S4x256x16, .f32⟩ : BufTy).Contents (Elt F) → (⟨S4x256x16, .f32⟩ : BufTy).Contents (Elt F) → (⟨S4x256x16, .f32⟩ : BufTy).Contents (Elt F)),
    nullary main_cst_388 (constant S_ .f32 0x00000000#32),
    binary main_v3900 main_cst_388 main_v3901 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_389 (constantI S_ 32 194#32),
    unary main_c_389 main_v3902 (broadcastInDim S1 ![] bcast_S_S1 : (⟨S_, .i32⟩ : BufTy).Contents (Elt F) → (⟨S1, .i32⟩ : BufTy).Contents (Elt F)),
    ternary main_v3883 main_v3902 main_v3901 main_v3903 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps194_ok : (stepOps194 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step194_val (V : Valuation τ sig (Elt Ideal)) :
    after (stepOps194 (F := Ideal)) V (no_index (Proc.devRef .tc main_v3895)) = stepH 194 (by decide) (V (Proc.devRef .tc main_arg0)) (V (Proc.devRef .tc main_v3)) (V (Proc.devRef .tc main_arg2)) (V (Proc.devRef .tc main_v3875))
    ∧ after (stepOps194 (F := Ideal)) V (no_index (Proc.devRef .tc main_v3903)) = stepY 194 (by decide) (V (Proc.devRef .tc main_arg3)) (stepH 194 (by decide) (V (Proc.devRef .tc main_arg0)) (V (Proc.devRef .tc main_v3)) (V (Proc.devRef .tc main_arg2)) (V (Proc.devRef .tc main_v3875))) (V (Proc.devRef .tc main_v3883)) := by
  simp only [stepOps194]
  after_results_simp
  first | exact ⟨rfl, rfl⟩ | fail "value"
/-- Step 195 of the loop: operations 4297 … 4318 of the program. -/
abbrev stepOps195 : List (HloOp τ sig (Elt F)) :=
  [ unary main_v3 main_v3904 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3895 main_v3904 main_v3905 (mulf : (⟨S4x256x16, .f32⟩ : BufTy).Contents (Elt F) → (⟨S4x256x16, .f32⟩ : BufTy).Contents (Elt F) → (⟨S4x256x16, .f32⟩ : BufTy).Contents (Elt F)),
    unary main_arg0 main_v3906 ((extractStridedSlice S4x1x256 ![0, 195, 0] · slices_S4x512x256_S4x1x256_0_195_0) : (⟨S4x512x256, .f32⟩ : BufTy).Contents (Elt F) → (⟨S4x1x256, .f32⟩ : BufTy).Contents (Elt F)),
    reshape main_v3906 main_v3907 rfl shapeCasts_S4x1x256_S4x256,
    unary main_v3907 main_v3908 (broadcastInDim S4x256x1 ![0, 1] bcast_S4x256_S4x256x1_0_1 : (⟨S4x256, .f32⟩ : BufTy).Contents (Elt F) → (⟨S4x256x1, .f32⟩ : BufTy).Contents (Elt F)),
    unary main_arg2 main_v3909 ((extractStridedSlice S4x1x16 ![0, 195, 0] · slices_S4x512x16_S4x1x16_0_195_0) : (⟨S4x512x16, .f32⟩ : BufTy).Contents (Elt F) → (⟨S4x1x16, .f32⟩ : BufTy).Contents (Elt F)),
    reshape main_v3909 main_v3910 rfl shapeCasts_S4x1x16_S4x16,
    unary main_v3910 main_v3911 (broadcastInDim S4x1x16 ![0, 2] bcast_S4x16_S4x1x16_0_2 : (⟨S4x16, .f32⟩ : BufTy).Contents (Elt F) → (⟨S4x1x16, .f32⟩ : BufTy).Contents (Elt F)),
    unary main_v3908 main_v3912 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3911 main_v3913 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3912 main_v3913 main_v3914 (mulf : (⟨S4x256x16, .f32⟩ : BufTy).Contents (Elt F) → (⟨S4x256x16, .f32⟩ : BufTy).Contents (Elt F) → (⟨S4x256x16, .f32⟩ : BufTy).Contents (Elt F)),
    binary main_v3905 main_v3914 main_v3915 (addf : (⟨S4x256x16, .f32⟩ : BufTy).Contents (Elt F) → (⟨S4x256x16, .f32⟩ : BufTy).Contents (Elt F) → (⟨S4x256x16, .f32⟩ : BufTy).Contents (Elt F)),
    unary main_arg3 main_v3916 ((extractStridedSlice S4x1x16 ![0, 195, 0] · slices_S4x512x16_S4x1x16_0_195_0) : (⟨S4x512x16, .f32⟩ : BufTy).Contents (Elt F) → (⟨S4x1x16, .f32⟩ : BufTy).Contents (Elt F)),
    reshape main_v3916 main_v3917 rfl shapeCasts_S4x1x16_S4x16,
    unary main_v3917 main_v3918 (broadcastInDim S4x1x16 ![0, 2] bcast_S4x16_S4x1x16_0_2 : (⟨S4x16, .f32⟩ : BufTy).Contents (Elt F) → (⟨S4x1x16, .f32⟩ : BufTy).Contents (Elt F)),
    unary main_v3918 main_v3919 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3915 main_v3919 main_v3920 (mulf : (⟨S4x256x16, .f32⟩ : BufTy).Contents (Elt F) → (⟨S4x256x16, .f32⟩ : BufTy).Contents (Elt F) → (⟨S4x256x16, .f32⟩ : BufTy).Contents (Elt F)),
    nullary main_cst_390 (constant S_ .f32 0x00000000#32),
    binary main_v3920 main_cst_390 main_v3921 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_391 (constantI S_ 32 195#32),
    unary main_c_391 main_v3922 (broadcastInDim S1 ![] bcast_S_S1 : (⟨S_, .i32⟩ : BufTy).Contents (Elt F) → (⟨S1, .i32⟩ : BufTy).Contents (Elt F)),
    ternary main_v3903 main_v3922 main_v3921 main_v3923 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps195_ok : (stepOps195 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step195_val (V : Valuation τ sig (Elt Ideal)) :
    after (stepOps195 (F := Ideal)) V (no_index (Proc.devRef .tc main_v3915)) = stepH 195 (by decide) (V (Proc.devRef .tc main_arg0)) (V (Proc.devRef .tc main_v3)) (V (Proc.devRef .tc main_arg2)) (V (Proc.devRef .tc main_v3895))
    ∧ after (stepOps195 (F := Ideal)) V (no_index (Proc.devRef .tc main_v3923)) = stepY 195 (by decide) (V (Proc.devRef .tc main_arg3)) (stepH 195 (by decide) (V (Proc.devRef .tc main_arg0)) (V (Proc.devRef .tc main_v3)) (V (Proc.devRef .tc main_arg2)) (V (Proc.devRef .tc main_v3895))) (V (Proc.devRef .tc main_v3903)) := by
  simp only [stepOps195]
  after_results_simp
  first | exact ⟨rfl, rfl⟩ | fail "value"
/-- Step 196 of the loop: operations 4319 … 4340 of the program. -/
abbrev stepOps196 : List (HloOp τ sig (Elt F)) :=
  [ unary main_v3 main_v3924 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3915 main_v3924 main_v3925 (mulf : (⟨S4x256x16, .f32⟩ : BufTy).Contents (Elt F) → (⟨S4x256x16, .f32⟩ : BufTy).Contents (Elt F) → (⟨S4x256x16, .f32⟩ : BufTy).Contents (Elt F)),
    unary main_arg0 main_v3926 ((extractStridedSlice S4x1x256 ![0, 196, 0] · slices_S4x512x256_S4x1x256_0_196_0) : (⟨S4x512x256, .f32⟩ : BufTy).Contents (Elt F) → (⟨S4x1x256, .f32⟩ : BufTy).Contents (Elt F)),
    reshape main_v3926 main_v3927 rfl shapeCasts_S4x1x256_S4x256,
    unary main_v3927 main_v3928 (broadcastInDim S4x256x1 ![0, 1] bcast_S4x256_S4x256x1_0_1 : (⟨S4x256, .f32⟩ : BufTy).Contents (Elt F) → (⟨S4x256x1, .f32⟩ : BufTy).Contents (Elt F)),
    unary main_arg2 main_v3929 ((extractStridedSlice S4x1x16 ![0, 196, 0] · slices_S4x512x16_S4x1x16_0_196_0) : (⟨S4x512x16, .f32⟩ : BufTy).Contents (Elt F) → (⟨S4x1x16, .f32⟩ : BufTy).Contents (Elt F)),
    reshape main_v3929 main_v3930 rfl shapeCasts_S4x1x16_S4x16,
    unary main_v3930 main_v3931 (broadcastInDim S4x1x16 ![0, 2] bcast_S4x16_S4x1x16_0_2 : (⟨S4x16, .f32⟩ : BufTy).Contents (Elt F) → (⟨S4x1x16, .f32⟩ : BufTy).Contents (Elt F)),
    unary main_v3928 main_v3932 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3931 main_v3933 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3932 main_v3933 main_v3934 (mulf : (⟨S4x256x16, .f32⟩ : BufTy).Contents (Elt F) → (⟨S4x256x16, .f32⟩ : BufTy).Contents (Elt F) → (⟨S4x256x16, .f32⟩ : BufTy).Contents (Elt F)),
    binary main_v3925 main_v3934 main_v3935 (addf : (⟨S4x256x16, .f32⟩ : BufTy).Contents (Elt F) → (⟨S4x256x16, .f32⟩ : BufTy).Contents (Elt F) → (⟨S4x256x16, .f32⟩ : BufTy).Contents (Elt F)),
    unary main_arg3 main_v3936 ((extractStridedSlice S4x1x16 ![0, 196, 0] · slices_S4x512x16_S4x1x16_0_196_0) : (⟨S4x512x16, .f32⟩ : BufTy).Contents (Elt F) → (⟨S4x1x16, .f32⟩ : BufTy).Contents (Elt F)),
    reshape main_v3936 main_v3937 rfl shapeCasts_S4x1x16_S4x16,
    unary main_v3937 main_v3938 (broadcastInDim S4x1x16 ![0, 2] bcast_S4x16_S4x1x16_0_2 : (⟨S4x16, .f32⟩ : BufTy).Contents (Elt F) → (⟨S4x1x16, .f32⟩ : BufTy).Contents (Elt F)),
    unary main_v3938 main_v3939 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3935 main_v3939 main_v3940 (mulf : (⟨S4x256x16, .f32⟩ : BufTy).Contents (Elt F) → (⟨S4x256x16, .f32⟩ : BufTy).Contents (Elt F) → (⟨S4x256x16, .f32⟩ : BufTy).Contents (Elt F)),
    nullary main_cst_392 (constant S_ .f32 0x00000000#32),
    binary main_v3940 main_cst_392 main_v3941 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_393 (constantI S_ 32 196#32),
    unary main_c_393 main_v3942 (broadcastInDim S1 ![] bcast_S_S1 : (⟨S_, .i32⟩ : BufTy).Contents (Elt F) → (⟨S1, .i32⟩ : BufTy).Contents (Elt F)),
    ternary main_v3923 main_v3942 main_v3941 main_v3943 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps196_ok : (stepOps196 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step196_val (V : Valuation τ sig (Elt Ideal)) :
    after (stepOps196 (F := Ideal)) V (no_index (Proc.devRef .tc main_v3935)) = stepH 196 (by decide) (V (Proc.devRef .tc main_arg0)) (V (Proc.devRef .tc main_v3)) (V (Proc.devRef .tc main_arg2)) (V (Proc.devRef .tc main_v3915))
    ∧ after (stepOps196 (F := Ideal)) V (no_index (Proc.devRef .tc main_v3943)) = stepY 196 (by decide) (V (Proc.devRef .tc main_arg3)) (stepH 196 (by decide) (V (Proc.devRef .tc main_arg0)) (V (Proc.devRef .tc main_v3)) (V (Proc.devRef .tc main_arg2)) (V (Proc.devRef .tc main_v3915))) (V (Proc.devRef .tc main_v3923)) := by
  simp only [stepOps196]
  after_results_simp
  first | exact ⟨rfl, rfl⟩ | fail "value"
/-- Step 197 of the loop: operations 4341 … 4362 of the program. -/
abbrev stepOps197 : List (HloOp τ sig (Elt F)) :=
  [ unary main_v3 main_v3944 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3935 main_v3944 main_v3945 (mulf : (⟨S4x256x16, .f32⟩ : BufTy).Contents (Elt F) → (⟨S4x256x16, .f32⟩ : BufTy).Contents (Elt F) → (⟨S4x256x16, .f32⟩ : BufTy).Contents (Elt F)),
    unary main_arg0 main_v3946 ((extractStridedSlice S4x1x256 ![0, 197, 0] · slices_S4x512x256_S4x1x256_0_197_0) : (⟨S4x512x256, .f32⟩ : BufTy).Contents (Elt F) → (⟨S4x1x256, .f32⟩ : BufTy).Contents (Elt F)),
    reshape main_v3946 main_v3947 rfl shapeCasts_S4x1x256_S4x256,
    unary main_v3947 main_v3948 (broadcastInDim S4x256x1 ![0, 1] bcast_S4x256_S4x256x1_0_1 : (⟨S4x256, .f32⟩ : BufTy).Contents (Elt F) → (⟨S4x256x1, .f32⟩ : BufTy).Contents (Elt F)),
    unary main_arg2 main_v3949 ((extractStridedSlice S4x1x16 ![0, 197, 0] · slices_S4x512x16_S4x1x16_0_197_0) : (⟨S4x512x16, .f32⟩ : BufTy).Contents (Elt F) → (⟨S4x1x16, .f32⟩ : BufTy).Contents (Elt F)),
    reshape main_v3949 main_v3950 rfl shapeCasts_S4x1x16_S4x16,
    unary main_v3950 main_v3951 (broadcastInDim S4x1x16 ![0, 2] bcast_S4x16_S4x1x16_0_2 : (⟨S4x16, .f32⟩ : BufTy).Contents (Elt F) → (⟨S4x1x16, .f32⟩ : BufTy).Contents (Elt F)),
    unary main_v3948 main_v3952 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3951 main_v3953 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3952 main_v3953 main_v3954 (mulf : (⟨S4x256x16, .f32⟩ : BufTy).Contents (Elt F) → (⟨S4x256x16, .f32⟩ : BufTy).Contents (Elt F) → (⟨S4x256x16, .f32⟩ : BufTy).Contents (Elt F)),
    binary main_v3945 main_v3954 main_v3955 (addf : (⟨S4x256x16, .f32⟩ : BufTy).Contents (Elt F) → (⟨S4x256x16, .f32⟩ : BufTy).Contents (Elt F) → (⟨S4x256x16, .f32⟩ : BufTy).Contents (Elt F)),
    unary main_arg3 main_v3956 ((extractStridedSlice S4x1x16 ![0, 197, 0] · slices_S4x512x16_S4x1x16_0_197_0) : (⟨S4x512x16, .f32⟩ : BufTy).Contents (Elt F) → (⟨S4x1x16, .f32⟩ : BufTy).Contents (Elt F)),
    reshape main_v3956 main_v3957 rfl shapeCasts_S4x1x16_S4x16,
    unary main_v3957 main_v3958 (broadcastInDim S4x1x16 ![0, 2] bcast_S4x16_S4x1x16_0_2 : (⟨S4x16, .f32⟩ : BufTy).Contents (Elt F) → (⟨S4x1x16, .f32⟩ : BufTy).Contents (Elt F)),
    unary main_v3958 main_v3959 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3955 main_v3959 main_v3960 (mulf : (⟨S4x256x16, .f32⟩ : BufTy).Contents (Elt F) → (⟨S4x256x16, .f32⟩ : BufTy).Contents (Elt F) → (⟨S4x256x16, .f32⟩ : BufTy).Contents (Elt F)),
    nullary main_cst_394 (constant S_ .f32 0x00000000#32),
    binary main_v3960 main_cst_394 main_v3961 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_395 (constantI S_ 32 197#32),
    unary main_c_395 main_v3962 (broadcastInDim S1 ![] bcast_S_S1 : (⟨S_, .i32⟩ : BufTy).Contents (Elt F) → (⟨S1, .i32⟩ : BufTy).Contents (Elt F)),
    ternary main_v3943 main_v3962 main_v3961 main_v3963 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps197_ok : (stepOps197 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step197_val (V : Valuation τ sig (Elt Ideal)) :
    after (stepOps197 (F := Ideal)) V (no_index (Proc.devRef .tc main_v3955)) = stepH 197 (by decide) (V (Proc.devRef .tc main_arg0)) (V (Proc.devRef .tc main_v3)) (V (Proc.devRef .tc main_arg2)) (V (Proc.devRef .tc main_v3935))
    ∧ after (stepOps197 (F := Ideal)) V (no_index (Proc.devRef .tc main_v3963)) = stepY 197 (by decide) (V (Proc.devRef .tc main_arg3)) (stepH 197 (by decide) (V (Proc.devRef .tc main_arg0)) (V (Proc.devRef .tc main_v3)) (V (Proc.devRef .tc main_arg2)) (V (Proc.devRef .tc main_v3935))) (V (Proc.devRef .tc main_v3943)) := by
  simp only [stepOps197]
  after_results_simp
  first | exact ⟨rfl, rfl⟩ | fail "value"
/-- Step 198 of the loop: operations 4363 … 4384 of the program. -/
abbrev stepOps198 : List (HloOp τ sig (Elt F)) :=
  [ unary main_v3 main_v3964 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3955 main_v3964 main_v3965 (mulf : (⟨S4x256x16, .f32⟩ : BufTy).Contents (Elt F) → (⟨S4x256x16, .f32⟩ : BufTy).Contents (Elt F) → (⟨S4x256x16, .f32⟩ : BufTy).Contents (Elt F)),
    unary main_arg0 main_v3966 ((extractStridedSlice S4x1x256 ![0, 198, 0] · slices_S4x512x256_S4x1x256_0_198_0) : (⟨S4x512x256, .f32⟩ : BufTy).Contents (Elt F) → (⟨S4x1x256, .f32⟩ : BufTy).Contents (Elt F)),
    reshape main_v3966 main_v3967 rfl shapeCasts_S4x1x256_S4x256,
    unary main_v3967 main_v3968 (broadcastInDim S4x256x1 ![0, 1] bcast_S4x256_S4x256x1_0_1 : (⟨S4x256, .f32⟩ : BufTy).Contents (Elt F) → (⟨S4x256x1, .f32⟩ : BufTy).Contents (Elt F)),
    unary main_arg2 main_v3969 ((extractStridedSlice S4x1x16 ![0, 198, 0] · slices_S4x512x16_S4x1x16_0_198_0) : (⟨S4x512x16, .f32⟩ : BufTy).Contents (Elt F) → (⟨S4x1x16, .f32⟩ : BufTy).Contents (Elt F)),
    reshape main_v3969 main_v3970 rfl shapeCasts_S4x1x16_S4x16,
    unary main_v3970 main_v3971 (broadcastInDim S4x1x16 ![0, 2] bcast_S4x16_S4x1x16_0_2 : (⟨S4x16, .f32⟩ : BufTy).Contents (Elt F) → (⟨S4x1x16, .f32⟩ : BufTy).Contents (Elt F)),
    unary main_v3968 main_v3972 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3971 main_v3973 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3972 main_v3973 main_v3974 (mulf : (⟨S4x256x16, .f32⟩ : BufTy).Contents (Elt F) → (⟨S4x256x16, .f32⟩ : BufTy).Contents (Elt F) → (⟨S4x256x16, .f32⟩ : BufTy).Contents (Elt F)),
    binary main_v3965 main_v3974 main_v3975 (addf : (⟨S4x256x16, .f32⟩ : BufTy).Contents (Elt F) → (⟨S4x256x16, .f32⟩ : BufTy).Contents (Elt F) → (⟨S4x256x16, .f32⟩ : BufTy).Contents (Elt F)),
    unary main_arg3 main_v3976 ((extractStridedSlice S4x1x16 ![0, 198, 0] · slices_S4x512x16_S4x1x16_0_198_0) : (⟨S4x512x16, .f32⟩ : BufTy).Contents (Elt F) → (⟨S4x1x16, .f32⟩ : BufTy).Contents (Elt F)),
    reshape main_v3976 main_v3977 rfl shapeCasts_S4x1x16_S4x16,
    unary main_v3977 main_v3978 (broadcastInDim S4x1x16 ![0, 2] bcast_S4x16_S4x1x16_0_2 : (⟨S4x16, .f32⟩ : BufTy).Contents (Elt F) → (⟨S4x1x16, .f32⟩ : BufTy).Contents (Elt F)),
    unary main_v3978 main_v3979 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3975 main_v3979 main_v3980 (mulf : (⟨S4x256x16, .f32⟩ : BufTy).Contents (Elt F) → (⟨S4x256x16, .f32⟩ : BufTy).Contents (Elt F) → (⟨S4x256x16, .f32⟩ : BufTy).Contents (Elt F)),
    nullary main_cst_396 (constant S_ .f32 0x00000000#32),
    binary main_v3980 main_cst_396 main_v3981 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_397 (constantI S_ 32 198#32),
    unary main_c_397 main_v3982 (broadcastInDim S1 ![] bcast_S_S1 : (⟨S_, .i32⟩ : BufTy).Contents (Elt F) → (⟨S1, .i32⟩ : BufTy).Contents (Elt F)),
    ternary main_v3963 main_v3982 main_v3981 main_v3983 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps198_ok : (stepOps198 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step198_val (V : Valuation τ sig (Elt Ideal)) :
    after (stepOps198 (F := Ideal)) V (no_index (Proc.devRef .tc main_v3975)) = stepH 198 (by decide) (V (Proc.devRef .tc main_arg0)) (V (Proc.devRef .tc main_v3)) (V (Proc.devRef .tc main_arg2)) (V (Proc.devRef .tc main_v3955))
    ∧ after (stepOps198 (F := Ideal)) V (no_index (Proc.devRef .tc main_v3983)) = stepY 198 (by decide) (V (Proc.devRef .tc main_arg3)) (stepH 198 (by decide) (V (Proc.devRef .tc main_arg0)) (V (Proc.devRef .tc main_v3)) (V (Proc.devRef .tc main_arg2)) (V (Proc.devRef .tc main_v3955))) (V (Proc.devRef .tc main_v3963)) := by
  simp only [stepOps198]
  after_results_simp
  first | exact ⟨rfl, rfl⟩ | fail "value"
/-- Step 199 of the loop: operations 4385 … 4406 of the program. -/
abbrev stepOps199 : List (HloOp τ sig (Elt F)) :=
  [ unary main_v3 main_v3984 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3975 main_v3984 main_v3985 (mulf : (⟨S4x256x16, .f32⟩ : BufTy).Contents (Elt F) → (⟨S4x256x16, .f32⟩ : BufTy).Contents (Elt F) → (⟨S4x256x16, .f32⟩ : BufTy).Contents (Elt F)),
    unary main_arg0 main_v3986 ((extractStridedSlice S4x1x256 ![0, 199, 0] · slices_S4x512x256_S4x1x256_0_199_0) : (⟨S4x512x256, .f32⟩ : BufTy).Contents (Elt F) → (⟨S4x1x256, .f32⟩ : BufTy).Contents (Elt F)),
    reshape main_v3986 main_v3987 rfl shapeCasts_S4x1x256_S4x256,
    unary main_v3987 main_v3988 (broadcastInDim S4x256x1 ![0, 1] bcast_S4x256_S4x256x1_0_1 : (⟨S4x256, .f32⟩ : BufTy).Contents (Elt F) → (⟨S4x256x1, .f32⟩ : BufTy).Contents (Elt F)),
    unary main_arg2 main_v3989 ((extractStridedSlice S4x1x16 ![0, 199, 0] · slices_S4x512x16_S4x1x16_0_199_0) : (⟨S4x512x16, .f32⟩ : BufTy).Contents (Elt F) → (⟨S4x1x16, .f32⟩ : BufTy).Contents (Elt F)),
    reshape main_v3989 main_v3990 rfl shapeCasts_S4x1x16_S4x16,
    unary main_v3990 main_v3991 (broadcastInDim S4x1x16 ![0, 2] bcast_S4x16_S4x1x16_0_2 : (⟨S4x16, .f32⟩ : BufTy).Contents (Elt F) → (⟨S4x1x16, .f32⟩ : BufTy).Contents (Elt F)),
    unary main_v3988 main_v3992 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v3991 main_v3993 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3992 main_v3993 main_v3994 (mulf : (⟨S4x256x16, .f32⟩ : BufTy).Contents (Elt F) → (⟨S4x256x16, .f32⟩ : BufTy).Contents (Elt F) → (⟨S4x256x16, .f32⟩ : BufTy).Contents (Elt F)),
    binary main_v3985 main_v3994 main_v3995 (addf : (⟨S4x256x16, .f32⟩ : BufTy).Contents (Elt F) → (⟨S4x256x16, .f32⟩ : BufTy).Contents (Elt F) → (⟨S4x256x16, .f32⟩ : BufTy).Contents (Elt F)),
    unary main_arg3 main_v3996 ((extractStridedSlice S4x1x16 ![0, 199, 0] · slices_S4x512x16_S4x1x16_0_199_0) : (⟨S4x512x16, .f32⟩ : BufTy).Contents (Elt F) → (⟨S4x1x16, .f32⟩ : BufTy).Contents (Elt F)),
    reshape main_v3996 main_v3997 rfl shapeCasts_S4x1x16_S4x16,
    unary main_v3997 main_v3998 (broadcastInDim S4x1x16 ![0, 2] bcast_S4x16_S4x1x16_0_2 : (⟨S4x16, .f32⟩ : BufTy).Contents (Elt F) → (⟨S4x1x16, .f32⟩ : BufTy).Contents (Elt F)),
    unary main_v3998 main_v3999 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v3995 main_v3999 main_v4000 (mulf : (⟨S4x256x16, .f32⟩ : BufTy).Contents (Elt F) → (⟨S4x256x16, .f32⟩ : BufTy).Contents (Elt F) → (⟨S4x256x16, .f32⟩ : BufTy).Contents (Elt F)),
    nullary main_cst_398 (constant S_ .f32 0x00000000#32),
    binary main_v4000 main_cst_398 main_v4001 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_399 (constantI S_ 32 199#32),
    unary main_c_399 main_v4002 (broadcastInDim S1 ![] bcast_S_S1 : (⟨S_, .i32⟩ : BufTy).Contents (Elt F) → (⟨S1, .i32⟩ : BufTy).Contents (Elt F)),
    ternary main_v3983 main_v4002 main_v4001 main_v4003 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps199_ok : (stepOps199 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step199_val (V : Valuation τ sig (Elt Ideal)) :
    after (stepOps199 (F := Ideal)) V (no_index (Proc.devRef .tc main_v3995)) = stepH 199 (by decide) (V (Proc.devRef .tc main_arg0)) (V (Proc.devRef .tc main_v3)) (V (Proc.devRef .tc main_arg2)) (V (Proc.devRef .tc main_v3975))
    ∧ after (stepOps199 (F := Ideal)) V (no_index (Proc.devRef .tc main_v4003)) = stepY 199 (by decide) (V (Proc.devRef .tc main_arg3)) (stepH 199 (by decide) (V (Proc.devRef .tc main_arg0)) (V (Proc.devRef .tc main_v3)) (V (Proc.devRef .tc main_arg2)) (V (Proc.devRef .tc main_v3975))) (V (Proc.devRef .tc main_v3983)) := by
  simp only [stepOps199]
  after_results_simp
  first | exact ⟨rfl, rfl⟩ | fail "value"
/-- Step 200 of the loop: operations 4407 … 4428 of the program. -/
abbrev stepOps200 : List (HloOp τ sig (Elt F)) :=
  [ unary main_v3 main_v4004 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v3995 main_v4004 main_v4005 (mulf : (⟨S4x256x16, .f32⟩ : BufTy).Contents (Elt F) → (⟨S4x256x16, .f32⟩ : BufTy).Contents (Elt F) → (⟨S4x256x16, .f32⟩ : BufTy).Contents (Elt F)),
    unary main_arg0 main_v4006 ((extractStridedSlice S4x1x256 ![0, 200, 0] · slices_S4x512x256_S4x1x256_0_200_0) : (⟨S4x512x256, .f32⟩ : BufTy).Contents (Elt F) → (⟨S4x1x256, .f32⟩ : BufTy).Contents (Elt F)),
    reshape main_v4006 main_v4007 rfl shapeCasts_S4x1x256_S4x256,
    unary main_v4007 main_v4008 (broadcastInDim S4x256x1 ![0, 1] bcast_S4x256_S4x256x1_0_1 : (⟨S4x256, .f32⟩ : BufTy).Contents (Elt F) → (⟨S4x256x1, .f32⟩ : BufTy).Contents (Elt F)),
    unary main_arg2 main_v4009 ((extractStridedSlice S4x1x16 ![0, 200, 0] · slices_S4x512x16_S4x1x16_0_200_0) : (⟨S4x512x16, .f32⟩ : BufTy).Contents (Elt F) → (⟨S4x1x16, .f32⟩ : BufTy).Contents (Elt F)),
    reshape main_v4009 main_v4010 rfl shapeCasts_S4x1x16_S4x16,
    unary main_v4010 main_v4011 (broadcastInDim S4x1x16 ![0, 2] bcast_S4x16_S4x1x16_0_2 : (⟨S4x16, .f32⟩ : BufTy).Contents (Elt F) → (⟨S4x1x16, .f32⟩ : BufTy).Contents (Elt F)),
    unary main_v4008 main_v4012 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4011 main_v4013 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4012 main_v4013 main_v4014 (mulf : (⟨S4x256x16, .f32⟩ : BufTy).Contents (Elt F) → (⟨S4x256x16, .f32⟩ : BufTy).Contents (Elt F) → (⟨S4x256x16, .f32⟩ : BufTy).Contents (Elt F)),
    binary main_v4005 main_v4014 main_v4015 (addf : (⟨S4x256x16, .f32⟩ : BufTy).Contents (Elt F) → (⟨S4x256x16, .f32⟩ : BufTy).Contents (Elt F) → (⟨S4x256x16, .f32⟩ : BufTy).Contents (Elt F)),
    unary main_arg3 main_v4016 ((extractStridedSlice S4x1x16 ![0, 200, 0] · slices_S4x512x16_S4x1x16_0_200_0) : (⟨S4x512x16, .f32⟩ : BufTy).Contents (Elt F) → (⟨S4x1x16, .f32⟩ : BufTy).Contents (Elt F)),
    reshape main_v4016 main_v4017 rfl shapeCasts_S4x1x16_S4x16,
    unary main_v4017 main_v4018 (broadcastInDim S4x1x16 ![0, 2] bcast_S4x16_S4x1x16_0_2 : (⟨S4x16, .f32⟩ : BufTy).Contents (Elt F) → (⟨S4x1x16, .f32⟩ : BufTy).Contents (Elt F)),
    unary main_v4018 main_v4019 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4015 main_v4019 main_v4020 (mulf : (⟨S4x256x16, .f32⟩ : BufTy).Contents (Elt F) → (⟨S4x256x16, .f32⟩ : BufTy).Contents (Elt F) → (⟨S4x256x16, .f32⟩ : BufTy).Contents (Elt F)),
    nullary main_cst_400 (constant S_ .f32 0x00000000#32),
    binary main_v4020 main_cst_400 main_v4021 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_401 (constantI S_ 32 200#32),
    unary main_c_401 main_v4022 (broadcastInDim S1 ![] bcast_S_S1 : (⟨S_, .i32⟩ : BufTy).Contents (Elt F) → (⟨S1, .i32⟩ : BufTy).Contents (Elt F)),
    ternary main_v4003 main_v4022 main_v4021 main_v4023 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps200_ok : (stepOps200 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step200_val (V : Valuation τ sig (Elt Ideal)) :
    after (stepOps200 (F := Ideal)) V (no_index (Proc.devRef .tc main_v4015)) = stepH 200 (by decide) (V (Proc.devRef .tc main_arg0)) (V (Proc.devRef .tc main_v3)) (V (Proc.devRef .tc main_arg2)) (V (Proc.devRef .tc main_v3995))
    ∧ after (stepOps200 (F := Ideal)) V (no_index (Proc.devRef .tc main_v4023)) = stepY 200 (by decide) (V (Proc.devRef .tc main_arg3)) (stepH 200 (by decide) (V (Proc.devRef .tc main_arg0)) (V (Proc.devRef .tc main_v3)) (V (Proc.devRef .tc main_arg2)) (V (Proc.devRef .tc main_v3995))) (V (Proc.devRef .tc main_v4003)) := by
  simp only [stepOps200]
  after_results_simp
  first | exact ⟨rfl, rfl⟩ | fail "value"
/-- Step 201 of the loop: operations 4429 … 4450 of the program. -/
abbrev stepOps201 : List (HloOp τ sig (Elt F)) :=
  [ unary main_v3 main_v4024 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4015 main_v4024 main_v4025 (mulf : (⟨S4x256x16, .f32⟩ : BufTy).Contents (Elt F) → (⟨S4x256x16, .f32⟩ : BufTy).Contents (Elt F) → (⟨S4x256x16, .f32⟩ : BufTy).Contents (Elt F)),
    unary main_arg0 main_v4026 ((extractStridedSlice S4x1x256 ![0, 201, 0] · slices_S4x512x256_S4x1x256_0_201_0) : (⟨S4x512x256, .f32⟩ : BufTy).Contents (Elt F) → (⟨S4x1x256, .f32⟩ : BufTy).Contents (Elt F)),
    reshape main_v4026 main_v4027 rfl shapeCasts_S4x1x256_S4x256,
    unary main_v4027 main_v4028 (broadcastInDim S4x256x1 ![0, 1] bcast_S4x256_S4x256x1_0_1 : (⟨S4x256, .f32⟩ : BufTy).Contents (Elt F) → (⟨S4x256x1, .f32⟩ : BufTy).Contents (Elt F)),
    unary main_arg2 main_v4029 ((extractStridedSlice S4x1x16 ![0, 201, 0] · slices_S4x512x16_S4x1x16_0_201_0) : (⟨S4x512x16, .f32⟩ : BufTy).Contents (Elt F) → (⟨S4x1x16, .f32⟩ : BufTy).Contents (Elt F)),
    reshape main_v4029 main_v4030 rfl shapeCasts_S4x1x16_S4x16,
    unary main_v4030 main_v4031 (broadcastInDim S4x1x16 ![0, 2] bcast_S4x16_S4x1x16_0_2 : (⟨S4x16, .f32⟩ : BufTy).Contents (Elt F) → (⟨S4x1x16, .f32⟩ : BufTy).Contents (Elt F)),
    unary main_v4028 main_v4032 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4031 main_v4033 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4032 main_v4033 main_v4034 (mulf : (⟨S4x256x16, .f32⟩ : BufTy).Contents (Elt F) → (⟨S4x256x16, .f32⟩ : BufTy).Contents (Elt F) → (⟨S4x256x16, .f32⟩ : BufTy).Contents (Elt F)),
    binary main_v4025 main_v4034 main_v4035 (addf : (⟨S4x256x16, .f32⟩ : BufTy).Contents (Elt F) → (⟨S4x256x16, .f32⟩ : BufTy).Contents (Elt F) → (⟨S4x256x16, .f32⟩ : BufTy).Contents (Elt F)),
    unary main_arg3 main_v4036 ((extractStridedSlice S4x1x16 ![0, 201, 0] · slices_S4x512x16_S4x1x16_0_201_0) : (⟨S4x512x16, .f32⟩ : BufTy).Contents (Elt F) → (⟨S4x1x16, .f32⟩ : BufTy).Contents (Elt F)),
    reshape main_v4036 main_v4037 rfl shapeCasts_S4x1x16_S4x16,
    unary main_v4037 main_v4038 (broadcastInDim S4x1x16 ![0, 2] bcast_S4x16_S4x1x16_0_2 : (⟨S4x16, .f32⟩ : BufTy).Contents (Elt F) → (⟨S4x1x16, .f32⟩ : BufTy).Contents (Elt F)),
    unary main_v4038 main_v4039 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4035 main_v4039 main_v4040 (mulf : (⟨S4x256x16, .f32⟩ : BufTy).Contents (Elt F) → (⟨S4x256x16, .f32⟩ : BufTy).Contents (Elt F) → (⟨S4x256x16, .f32⟩ : BufTy).Contents (Elt F)),
    nullary main_cst_402 (constant S_ .f32 0x00000000#32),
    binary main_v4040 main_cst_402 main_v4041 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_403 (constantI S_ 32 201#32),
    unary main_c_403 main_v4042 (broadcastInDim S1 ![] bcast_S_S1 : (⟨S_, .i32⟩ : BufTy).Contents (Elt F) → (⟨S1, .i32⟩ : BufTy).Contents (Elt F)),
    ternary main_v4023 main_v4042 main_v4041 main_v4043 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps201_ok : (stepOps201 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step201_val (V : Valuation τ sig (Elt Ideal)) :
    after (stepOps201 (F := Ideal)) V (no_index (Proc.devRef .tc main_v4035)) = stepH 201 (by decide) (V (Proc.devRef .tc main_arg0)) (V (Proc.devRef .tc main_v3)) (V (Proc.devRef .tc main_arg2)) (V (Proc.devRef .tc main_v4015))
    ∧ after (stepOps201 (F := Ideal)) V (no_index (Proc.devRef .tc main_v4043)) = stepY 201 (by decide) (V (Proc.devRef .tc main_arg3)) (stepH 201 (by decide) (V (Proc.devRef .tc main_arg0)) (V (Proc.devRef .tc main_v3)) (V (Proc.devRef .tc main_arg2)) (V (Proc.devRef .tc main_v4015))) (V (Proc.devRef .tc main_v4023)) := by
  simp only [stepOps201]
  after_results_simp
  first | exact ⟨rfl, rfl⟩ | fail "value"
/-- Step 202 of the loop: operations 4451 … 4472 of the program. -/
abbrev stepOps202 : List (HloOp τ sig (Elt F)) :=
  [ unary main_v3 main_v4044 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4035 main_v4044 main_v4045 (mulf : (⟨S4x256x16, .f32⟩ : BufTy).Contents (Elt F) → (⟨S4x256x16, .f32⟩ : BufTy).Contents (Elt F) → (⟨S4x256x16, .f32⟩ : BufTy).Contents (Elt F)),
    unary main_arg0 main_v4046 ((extractStridedSlice S4x1x256 ![0, 202, 0] · slices_S4x512x256_S4x1x256_0_202_0) : (⟨S4x512x256, .f32⟩ : BufTy).Contents (Elt F) → (⟨S4x1x256, .f32⟩ : BufTy).Contents (Elt F)),
    reshape main_v4046 main_v4047 rfl shapeCasts_S4x1x256_S4x256,
    unary main_v4047 main_v4048 (broadcastInDim S4x256x1 ![0, 1] bcast_S4x256_S4x256x1_0_1 : (⟨S4x256, .f32⟩ : BufTy).Contents (Elt F) → (⟨S4x256x1, .f32⟩ : BufTy).Contents (Elt F)),
    unary main_arg2 main_v4049 ((extractStridedSlice S4x1x16 ![0, 202, 0] · slices_S4x512x16_S4x1x16_0_202_0) : (⟨S4x512x16, .f32⟩ : BufTy).Contents (Elt F) → (⟨S4x1x16, .f32⟩ : BufTy).Contents (Elt F)),
    reshape main_v4049 main_v4050 rfl shapeCasts_S4x1x16_S4x16,
    unary main_v4050 main_v4051 (broadcastInDim S4x1x16 ![0, 2] bcast_S4x16_S4x1x16_0_2 : (⟨S4x16, .f32⟩ : BufTy).Contents (Elt F) → (⟨S4x1x16, .f32⟩ : BufTy).Contents (Elt F)),
    unary main_v4048 main_v4052 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4051 main_v4053 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4052 main_v4053 main_v4054 (mulf : (⟨S4x256x16, .f32⟩ : BufTy).Contents (Elt F) → (⟨S4x256x16, .f32⟩ : BufTy).Contents (Elt F) → (⟨S4x256x16, .f32⟩ : BufTy).Contents (Elt F)),
    binary main_v4045 main_v4054 main_v4055 (addf : (⟨S4x256x16, .f32⟩ : BufTy).Contents (Elt F) → (⟨S4x256x16, .f32⟩ : BufTy).Contents (Elt F) → (⟨S4x256x16, .f32⟩ : BufTy).Contents (Elt F)),
    unary main_arg3 main_v4056 ((extractStridedSlice S4x1x16 ![0, 202, 0] · slices_S4x512x16_S4x1x16_0_202_0) : (⟨S4x512x16, .f32⟩ : BufTy).Contents (Elt F) → (⟨S4x1x16, .f32⟩ : BufTy).Contents (Elt F)),
    reshape main_v4056 main_v4057 rfl shapeCasts_S4x1x16_S4x16,
    unary main_v4057 main_v4058 (broadcastInDim S4x1x16 ![0, 2] bcast_S4x16_S4x1x16_0_2 : (⟨S4x16, .f32⟩ : BufTy).Contents (Elt F) → (⟨S4x1x16, .f32⟩ : BufTy).Contents (Elt F)),
    unary main_v4058 main_v4059 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4055 main_v4059 main_v4060 (mulf : (⟨S4x256x16, .f32⟩ : BufTy).Contents (Elt F) → (⟨S4x256x16, .f32⟩ : BufTy).Contents (Elt F) → (⟨S4x256x16, .f32⟩ : BufTy).Contents (Elt F)),
    nullary main_cst_404 (constant S_ .f32 0x00000000#32),
    binary main_v4060 main_cst_404 main_v4061 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_405 (constantI S_ 32 202#32),
    unary main_c_405 main_v4062 (broadcastInDim S1 ![] bcast_S_S1 : (⟨S_, .i32⟩ : BufTy).Contents (Elt F) → (⟨S1, .i32⟩ : BufTy).Contents (Elt F)),
    ternary main_v4043 main_v4062 main_v4061 main_v4063 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps202_ok : (stepOps202 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step202_val (V : Valuation τ sig (Elt Ideal)) :
    after (stepOps202 (F := Ideal)) V (no_index (Proc.devRef .tc main_v4055)) = stepH 202 (by decide) (V (Proc.devRef .tc main_arg0)) (V (Proc.devRef .tc main_v3)) (V (Proc.devRef .tc main_arg2)) (V (Proc.devRef .tc main_v4035))
    ∧ after (stepOps202 (F := Ideal)) V (no_index (Proc.devRef .tc main_v4063)) = stepY 202 (by decide) (V (Proc.devRef .tc main_arg3)) (stepH 202 (by decide) (V (Proc.devRef .tc main_arg0)) (V (Proc.devRef .tc main_v3)) (V (Proc.devRef .tc main_arg2)) (V (Proc.devRef .tc main_v4035))) (V (Proc.devRef .tc main_v4043)) := by
  simp only [stepOps202]
  after_results_simp
  first | exact ⟨rfl, rfl⟩ | fail "value"
/-- Step 203 of the loop: operations 4473 … 4494 of the program. -/
abbrev stepOps203 : List (HloOp τ sig (Elt F)) :=
  [ unary main_v3 main_v4064 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4055 main_v4064 main_v4065 (mulf : (⟨S4x256x16, .f32⟩ : BufTy).Contents (Elt F) → (⟨S4x256x16, .f32⟩ : BufTy).Contents (Elt F) → (⟨S4x256x16, .f32⟩ : BufTy).Contents (Elt F)),
    unary main_arg0 main_v4066 ((extractStridedSlice S4x1x256 ![0, 203, 0] · slices_S4x512x256_S4x1x256_0_203_0) : (⟨S4x512x256, .f32⟩ : BufTy).Contents (Elt F) → (⟨S4x1x256, .f32⟩ : BufTy).Contents (Elt F)),
    reshape main_v4066 main_v4067 rfl shapeCasts_S4x1x256_S4x256,
    unary main_v4067 main_v4068 (broadcastInDim S4x256x1 ![0, 1] bcast_S4x256_S4x256x1_0_1 : (⟨S4x256, .f32⟩ : BufTy).Contents (Elt F) → (⟨S4x256x1, .f32⟩ : BufTy).Contents (Elt F)),
    unary main_arg2 main_v4069 ((extractStridedSlice S4x1x16 ![0, 203, 0] · slices_S4x512x16_S4x1x16_0_203_0) : (⟨S4x512x16, .f32⟩ : BufTy).Contents (Elt F) → (⟨S4x1x16, .f32⟩ : BufTy).Contents (Elt F)),
    reshape main_v4069 main_v4070 rfl shapeCasts_S4x1x16_S4x16,
    unary main_v4070 main_v4071 (broadcastInDim S4x1x16 ![0, 2] bcast_S4x16_S4x1x16_0_2 : (⟨S4x16, .f32⟩ : BufTy).Contents (Elt F) → (⟨S4x1x16, .f32⟩ : BufTy).Contents (Elt F)),
    unary main_v4068 main_v4072 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4071 main_v4073 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4072 main_v4073 main_v4074 (mulf : (⟨S4x256x16, .f32⟩ : BufTy).Contents (Elt F) → (⟨S4x256x16, .f32⟩ : BufTy).Contents (Elt F) → (⟨S4x256x16, .f32⟩ : BufTy).Contents (Elt F)),
    binary main_v4065 main_v4074 main_v4075 (addf : (⟨S4x256x16, .f32⟩ : BufTy).Contents (Elt F) → (⟨S4x256x16, .f32⟩ : BufTy).Contents (Elt F) → (⟨S4x256x16, .f32⟩ : BufTy).Contents (Elt F)),
    unary main_arg3 main_v4076 ((extractStridedSlice S4x1x16 ![0, 203, 0] · slices_S4x512x16_S4x1x16_0_203_0) : (⟨S4x512x16, .f32⟩ : BufTy).Contents (Elt F) → (⟨S4x1x16, .f32⟩ : BufTy).Contents (Elt F)),
    reshape main_v4076 main_v4077 rfl shapeCasts_S4x1x16_S4x16,
    unary main_v4077 main_v4078 (broadcastInDim S4x1x16 ![0, 2] bcast_S4x16_S4x1x16_0_2 : (⟨S4x16, .f32⟩ : BufTy).Contents (Elt F) → (⟨S4x1x16, .f32⟩ : BufTy).Contents (Elt F)),
    unary main_v4078 main_v4079 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4075 main_v4079 main_v4080 (mulf : (⟨S4x256x16, .f32⟩ : BufTy).Contents (Elt F) → (⟨S4x256x16, .f32⟩ : BufTy).Contents (Elt F) → (⟨S4x256x16, .f32⟩ : BufTy).Contents (Elt F)),
    nullary main_cst_406 (constant S_ .f32 0x00000000#32),
    binary main_v4080 main_cst_406 main_v4081 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_407 (constantI S_ 32 203#32),
    unary main_c_407 main_v4082 (broadcastInDim S1 ![] bcast_S_S1 : (⟨S_, .i32⟩ : BufTy).Contents (Elt F) → (⟨S1, .i32⟩ : BufTy).Contents (Elt F)),
    ternary main_v4063 main_v4082 main_v4081 main_v4083 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps203_ok : (stepOps203 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step203_val (V : Valuation τ sig (Elt Ideal)) :
    after (stepOps203 (F := Ideal)) V (no_index (Proc.devRef .tc main_v4075)) = stepH 203 (by decide) (V (Proc.devRef .tc main_arg0)) (V (Proc.devRef .tc main_v3)) (V (Proc.devRef .tc main_arg2)) (V (Proc.devRef .tc main_v4055))
    ∧ after (stepOps203 (F := Ideal)) V (no_index (Proc.devRef .tc main_v4083)) = stepY 203 (by decide) (V (Proc.devRef .tc main_arg3)) (stepH 203 (by decide) (V (Proc.devRef .tc main_arg0)) (V (Proc.devRef .tc main_v3)) (V (Proc.devRef .tc main_arg2)) (V (Proc.devRef .tc main_v4055))) (V (Proc.devRef .tc main_v4063)) := by
  simp only [stepOps203]
  after_results_simp
  first | exact ⟨rfl, rfl⟩ | fail "value"
/-- Step 204 of the loop: operations 4495 … 4516 of the program. -/
abbrev stepOps204 : List (HloOp τ sig (Elt F)) :=
  [ unary main_v3 main_v4084 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4075 main_v4084 main_v4085 (mulf : (⟨S4x256x16, .f32⟩ : BufTy).Contents (Elt F) → (⟨S4x256x16, .f32⟩ : BufTy).Contents (Elt F) → (⟨S4x256x16, .f32⟩ : BufTy).Contents (Elt F)),
    unary main_arg0 main_v4086 ((extractStridedSlice S4x1x256 ![0, 204, 0] · slices_S4x512x256_S4x1x256_0_204_0) : (⟨S4x512x256, .f32⟩ : BufTy).Contents (Elt F) → (⟨S4x1x256, .f32⟩ : BufTy).Contents (Elt F)),
    reshape main_v4086 main_v4087 rfl shapeCasts_S4x1x256_S4x256,
    unary main_v4087 main_v4088 (broadcastInDim S4x256x1 ![0, 1] bcast_S4x256_S4x256x1_0_1 : (⟨S4x256, .f32⟩ : BufTy).Contents (Elt F) → (⟨S4x256x1, .f32⟩ : BufTy).Contents (Elt F)),
    unary main_arg2 main_v4089 ((extractStridedSlice S4x1x16 ![0, 204, 0] · slices_S4x512x16_S4x1x16_0_204_0) : (⟨S4x512x16, .f32⟩ : BufTy).Contents (Elt F) → (⟨S4x1x16, .f32⟩ : BufTy).Contents (Elt F)),
    reshape main_v4089 main_v4090 rfl shapeCasts_S4x1x16_S4x16,
    unary main_v4090 main_v4091 (broadcastInDim S4x1x16 ![0, 2] bcast_S4x16_S4x1x16_0_2 : (⟨S4x16, .f32⟩ : BufTy).Contents (Elt F) → (⟨S4x1x16, .f32⟩ : BufTy).Contents (Elt F)),
    unary main_v4088 main_v4092 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4091 main_v4093 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4092 main_v4093 main_v4094 (mulf : (⟨S4x256x16, .f32⟩ : BufTy).Contents (Elt F) → (⟨S4x256x16, .f32⟩ : BufTy).Contents (Elt F) → (⟨S4x256x16, .f32⟩ : BufTy).Contents (Elt F)),
    binary main_v4085 main_v4094 main_v4095 (addf : (⟨S4x256x16, .f32⟩ : BufTy).Contents (Elt F) → (⟨S4x256x16, .f32⟩ : BufTy).Contents (Elt F) → (⟨S4x256x16, .f32⟩ : BufTy).Contents (Elt F)),
    unary main_arg3 main_v4096 ((extractStridedSlice S4x1x16 ![0, 204, 0] · slices_S4x512x16_S4x1x16_0_204_0) : (⟨S4x512x16, .f32⟩ : BufTy).Contents (Elt F) → (⟨S4x1x16, .f32⟩ : BufTy).Contents (Elt F)),
    reshape main_v4096 main_v4097 rfl shapeCasts_S4x1x16_S4x16,
    unary main_v4097 main_v4098 (broadcastInDim S4x1x16 ![0, 2] bcast_S4x16_S4x1x16_0_2 : (⟨S4x16, .f32⟩ : BufTy).Contents (Elt F) → (⟨S4x1x16, .f32⟩ : BufTy).Contents (Elt F)),
    unary main_v4098 main_v4099 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4095 main_v4099 main_v4100 (mulf : (⟨S4x256x16, .f32⟩ : BufTy).Contents (Elt F) → (⟨S4x256x16, .f32⟩ : BufTy).Contents (Elt F) → (⟨S4x256x16, .f32⟩ : BufTy).Contents (Elt F)),
    nullary main_cst_408 (constant S_ .f32 0x00000000#32),
    binary main_v4100 main_cst_408 main_v4101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_409 (constantI S_ 32 204#32),
    unary main_c_409 main_v4102 (broadcastInDim S1 ![] bcast_S_S1 : (⟨S_, .i32⟩ : BufTy).Contents (Elt F) → (⟨S1, .i32⟩ : BufTy).Contents (Elt F)),
    ternary main_v4083 main_v4102 main_v4101 main_v4103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps204_ok : (stepOps204 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step204_val (V : Valuation τ sig (Elt Ideal)) :
    after (stepOps204 (F := Ideal)) V (no_index (Proc.devRef .tc main_v4095)) = stepH 204 (by decide) (V (Proc.devRef .tc main_arg0)) (V (Proc.devRef .tc main_v3)) (V (Proc.devRef .tc main_arg2)) (V (Proc.devRef .tc main_v4075))
    ∧ after (stepOps204 (F := Ideal)) V (no_index (Proc.devRef .tc main_v4103)) = stepY 204 (by decide) (V (Proc.devRef .tc main_arg3)) (stepH 204 (by decide) (V (Proc.devRef .tc main_arg0)) (V (Proc.devRef .tc main_v3)) (V (Proc.devRef .tc main_arg2)) (V (Proc.devRef .tc main_v4075))) (V (Proc.devRef .tc main_v4083)) := by
  simp only [stepOps204]
  after_results_simp
  first | exact ⟨rfl, rfl⟩ | fail "value"
/-- Step 205 of the loop: operations 4517 … 4538 of the program. -/
abbrev stepOps205 : List (HloOp τ sig (Elt F)) :=
  [ unary main_v3 main_v4104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4095 main_v4104 main_v4105 (mulf : (⟨S4x256x16, .f32⟩ : BufTy).Contents (Elt F) → (⟨S4x256x16, .f32⟩ : BufTy).Contents (Elt F) → (⟨S4x256x16, .f32⟩ : BufTy).Contents (Elt F)),
    unary main_arg0 main_v4106 ((extractStridedSlice S4x1x256 ![0, 205, 0] · slices_S4x512x256_S4x1x256_0_205_0) : (⟨S4x512x256, .f32⟩ : BufTy).Contents (Elt F) → (⟨S4x1x256, .f32⟩ : BufTy).Contents (Elt F)),
    reshape main_v4106 main_v4107 rfl shapeCasts_S4x1x256_S4x256,
    unary main_v4107 main_v4108 (broadcastInDim S4x256x1 ![0, 1] bcast_S4x256_S4x256x1_0_1 : (⟨S4x256, .f32⟩ : BufTy).Contents (Elt F) → (⟨S4x256x1, .f32⟩ : BufTy).Contents (Elt F)),
    unary main_arg2 main_v4109 ((extractStridedSlice S4x1x16 ![0, 205, 0] · slices_S4x512x16_S4x1x16_0_205_0) : (⟨S4x512x16, .f32⟩ : BufTy).Contents (Elt F) → (⟨S4x1x16, .f32⟩ : BufTy).Contents (Elt F)),
    reshape main_v4109 main_v4110 rfl shapeCasts_S4x1x16_S4x16,
    unary main_v4110 main_v4111 (broadcastInDim S4x1x16 ![0, 2] bcast_S4x16_S4x1x16_0_2 : (⟨S4x16, .f32⟩ : BufTy).Contents (Elt F) → (⟨S4x1x16, .f32⟩ : BufTy).Contents (Elt F)),
    unary main_v4108 main_v4112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4111 main_v4113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4112 main_v4113 main_v4114 (mulf : (⟨S4x256x16, .f32⟩ : BufTy).Contents (Elt F) → (⟨S4x256x16, .f32⟩ : BufTy).Contents (Elt F) → (⟨S4x256x16, .f32⟩ : BufTy).Contents (Elt F)),
    binary main_v4105 main_v4114 main_v4115 (addf : (⟨S4x256x16, .f32⟩ : BufTy).Contents (Elt F) → (⟨S4x256x16, .f32⟩ : BufTy).Contents (Elt F) → (⟨S4x256x16, .f32⟩ : BufTy).Contents (Elt F)),
    unary main_arg3 main_v4116 ((extractStridedSlice S4x1x16 ![0, 205, 0] · slices_S4x512x16_S4x1x16_0_205_0) : (⟨S4x512x16, .f32⟩ : BufTy).Contents (Elt F) → (⟨S4x1x16, .f32⟩ : BufTy).Contents (Elt F)),
    reshape main_v4116 main_v4117 rfl shapeCasts_S4x1x16_S4x16,
    unary main_v4117 main_v4118 (broadcastInDim S4x1x16 ![0, 2] bcast_S4x16_S4x1x16_0_2 : (⟨S4x16, .f32⟩ : BufTy).Contents (Elt F) → (⟨S4x1x16, .f32⟩ : BufTy).Contents (Elt F)),
    unary main_v4118 main_v4119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4115 main_v4119 main_v4120 (mulf : (⟨S4x256x16, .f32⟩ : BufTy).Contents (Elt F) → (⟨S4x256x16, .f32⟩ : BufTy).Contents (Elt F) → (⟨S4x256x16, .f32⟩ : BufTy).Contents (Elt F)),
    nullary main_cst_410 (constant S_ .f32 0x00000000#32),
    binary main_v4120 main_cst_410 main_v4121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_411 (constantI S_ 32 205#32),
    unary main_c_411 main_v4122 (broadcastInDim S1 ![] bcast_S_S1 : (⟨S_, .i32⟩ : BufTy).Contents (Elt F) → (⟨S1, .i32⟩ : BufTy).Contents (Elt F)),
    ternary main_v4103 main_v4122 main_v4121 main_v4123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps205_ok : (stepOps205 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step205_val (V : Valuation τ sig (Elt Ideal)) :
    after (stepOps205 (F := Ideal)) V (no_index (Proc.devRef .tc main_v4115)) = stepH 205 (by decide) (V (Proc.devRef .tc main_arg0)) (V (Proc.devRef .tc main_v3)) (V (Proc.devRef .tc main_arg2)) (V (Proc.devRef .tc main_v4095))
    ∧ after (stepOps205 (F := Ideal)) V (no_index (Proc.devRef .tc main_v4123)) = stepY 205 (by decide) (V (Proc.devRef .tc main_arg3)) (stepH 205 (by decide) (V (Proc.devRef .tc main_arg0)) (V (Proc.devRef .tc main_v3)) (V (Proc.devRef .tc main_arg2)) (V (Proc.devRef .tc main_v4095))) (V (Proc.devRef .tc main_v4103)) := by
  simp only [stepOps205]
  after_results_simp
  first | exact ⟨rfl, rfl⟩ | fail "value"
/-- Step 206 of the loop: operations 4539 … 4560 of the program. -/
abbrev stepOps206 : List (HloOp τ sig (Elt F)) :=
  [ unary main_v3 main_v4124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4115 main_v4124 main_v4125 (mulf : (⟨S4x256x16, .f32⟩ : BufTy).Contents (Elt F) → (⟨S4x256x16, .f32⟩ : BufTy).Contents (Elt F) → (⟨S4x256x16, .f32⟩ : BufTy).Contents (Elt F)),
    unary main_arg0 main_v4126 ((extractStridedSlice S4x1x256 ![0, 206, 0] · slices_S4x512x256_S4x1x256_0_206_0) : (⟨S4x512x256, .f32⟩ : BufTy).Contents (Elt F) → (⟨S4x1x256, .f32⟩ : BufTy).Contents (Elt F)),
    reshape main_v4126 main_v4127 rfl shapeCasts_S4x1x256_S4x256,
    unary main_v4127 main_v4128 (broadcastInDim S4x256x1 ![0, 1] bcast_S4x256_S4x256x1_0_1 : (⟨S4x256, .f32⟩ : BufTy).Contents (Elt F) → (⟨S4x256x1, .f32⟩ : BufTy).Contents (Elt F)),
    unary main_arg2 main_v4129 ((extractStridedSlice S4x1x16 ![0, 206, 0] · slices_S4x512x16_S4x1x16_0_206_0) : (⟨S4x512x16, .f32⟩ : BufTy).Contents (Elt F) → (⟨S4x1x16, .f32⟩ : BufTy).Contents (Elt F)),
    reshape main_v4129 main_v4130 rfl shapeCasts_S4x1x16_S4x16,
    unary main_v4130 main_v4131 (broadcastInDim S4x1x16 ![0, 2] bcast_S4x16_S4x1x16_0_2 : (⟨S4x16, .f32⟩ : BufTy).Contents (Elt F) → (⟨S4x1x16, .f32⟩ : BufTy).Contents (Elt F)),
    unary main_v4128 main_v4132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4131 main_v4133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4132 main_v4133 main_v4134 (mulf : (⟨S4x256x16, .f32⟩ : BufTy).Contents (Elt F) → (⟨S4x256x16, .f32⟩ : BufTy).Contents (Elt F) → (⟨S4x256x16, .f32⟩ : BufTy).Contents (Elt F)),
    binary main_v4125 main_v4134 main_v4135 (addf : (⟨S4x256x16, .f32⟩ : BufTy).Contents (Elt F) → (⟨S4x256x16, .f32⟩ : BufTy).Contents (Elt F) → (⟨S4x256x16, .f32⟩ : BufTy).Contents (Elt F)),
    unary main_arg3 main_v4136 ((extractStridedSlice S4x1x16 ![0, 206, 0] · slices_S4x512x16_S4x1x16_0_206_0) : (⟨S4x512x16, .f32⟩ : BufTy).Contents (Elt F) → (⟨S4x1x16, .f32⟩ : BufTy).Contents (Elt F)),
    reshape main_v4136 main_v4137 rfl shapeCasts_S4x1x16_S4x16,
    unary main_v4137 main_v4138 (broadcastInDim S4x1x16 ![0, 2] bcast_S4x16_S4x1x16_0_2 : (⟨S4x16, .f32⟩ : BufTy).Contents (Elt F) → (⟨S4x1x16, .f32⟩ : BufTy).Contents (Elt F)),
    unary main_v4138 main_v4139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4135 main_v4139 main_v4140 (mulf : (⟨S4x256x16, .f32⟩ : BufTy).Contents (Elt F) → (⟨S4x256x16, .f32⟩ : BufTy).Contents (Elt F) → (⟨S4x256x16, .f32⟩ : BufTy).Contents (Elt F)),
    nullary main_cst_412 (constant S_ .f32 0x00000000#32),
    binary main_v4140 main_cst_412 main_v4141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_413 (constantI S_ 32 206#32),
    unary main_c_413 main_v4142 (broadcastInDim S1 ![] bcast_S_S1 : (⟨S_, .i32⟩ : BufTy).Contents (Elt F) → (⟨S1, .i32⟩ : BufTy).Contents (Elt F)),
    ternary main_v4123 main_v4142 main_v4141 main_v4143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps206_ok : (stepOps206 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step206_val (V : Valuation τ sig (Elt Ideal)) :
    after (stepOps206 (F := Ideal)) V (no_index (Proc.devRef .tc main_v4135)) = stepH 206 (by decide) (V (Proc.devRef .tc main_arg0)) (V (Proc.devRef .tc main_v3)) (V (Proc.devRef .tc main_arg2)) (V (Proc.devRef .tc main_v4115))
    ∧ after (stepOps206 (F := Ideal)) V (no_index (Proc.devRef .tc main_v4143)) = stepY 206 (by decide) (V (Proc.devRef .tc main_arg3)) (stepH 206 (by decide) (V (Proc.devRef .tc main_arg0)) (V (Proc.devRef .tc main_v3)) (V (Proc.devRef .tc main_arg2)) (V (Proc.devRef .tc main_v4115))) (V (Proc.devRef .tc main_v4123)) := by
  simp only [stepOps206]
  after_results_simp
  first | exact ⟨rfl, rfl⟩ | fail "value"
/-- Step 207 of the loop: operations 4561 … 4582 of the program. -/
abbrev stepOps207 : List (HloOp τ sig (Elt F)) :=
  [ unary main_v3 main_v4144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4135 main_v4144 main_v4145 (mulf : (⟨S4x256x16, .f32⟩ : BufTy).Contents (Elt F) → (⟨S4x256x16, .f32⟩ : BufTy).Contents (Elt F) → (⟨S4x256x16, .f32⟩ : BufTy).Contents (Elt F)),
    unary main_arg0 main_v4146 ((extractStridedSlice S4x1x256 ![0, 207, 0] · slices_S4x512x256_S4x1x256_0_207_0) : (⟨S4x512x256, .f32⟩ : BufTy).Contents (Elt F) → (⟨S4x1x256, .f32⟩ : BufTy).Contents (Elt F)),
    reshape main_v4146 main_v4147 rfl shapeCasts_S4x1x256_S4x256,
    unary main_v4147 main_v4148 (broadcastInDim S4x256x1 ![0, 1] bcast_S4x256_S4x256x1_0_1 : (⟨S4x256, .f32⟩ : BufTy).Contents (Elt F) → (⟨S4x256x1, .f32⟩ : BufTy).Contents (Elt F)),
    unary main_arg2 main_v4149 ((extractStridedSlice S4x1x16 ![0, 207, 0] · slices_S4x512x16_S4x1x16_0_207_0) : (⟨S4x512x16, .f32⟩ : BufTy).Contents (Elt F) → (⟨S4x1x16, .f32⟩ : BufTy).Contents (Elt F)),
    reshape main_v4149 main_v4150 rfl shapeCasts_S4x1x16_S4x16,
    unary main_v4150 main_v4151 (broadcastInDim S4x1x16 ![0, 2] bcast_S4x16_S4x1x16_0_2 : (⟨S4x16, .f32⟩ : BufTy).Contents (Elt F) → (⟨S4x1x16, .f32⟩ : BufTy).Contents (Elt F)),
    unary main_v4148 main_v4152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4151 main_v4153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4152 main_v4153 main_v4154 (mulf : (⟨S4x256x16, .f32⟩ : BufTy).Contents (Elt F) → (⟨S4x256x16, .f32⟩ : BufTy).Contents (Elt F) → (⟨S4x256x16, .f32⟩ : BufTy).Contents (Elt F)),
    binary main_v4145 main_v4154 main_v4155 (addf : (⟨S4x256x16, .f32⟩ : BufTy).Contents (Elt F) → (⟨S4x256x16, .f32⟩ : BufTy).Contents (Elt F) → (⟨S4x256x16, .f32⟩ : BufTy).Contents (Elt F)),
    unary main_arg3 main_v4156 ((extractStridedSlice S4x1x16 ![0, 207, 0] · slices_S4x512x16_S4x1x16_0_207_0) : (⟨S4x512x16, .f32⟩ : BufTy).Contents (Elt F) → (⟨S4x1x16, .f32⟩ : BufTy).Contents (Elt F)),
    reshape main_v4156 main_v4157 rfl shapeCasts_S4x1x16_S4x16,
    unary main_v4157 main_v4158 (broadcastInDim S4x1x16 ![0, 2] bcast_S4x16_S4x1x16_0_2 : (⟨S4x16, .f32⟩ : BufTy).Contents (Elt F) → (⟨S4x1x16, .f32⟩ : BufTy).Contents (Elt F)),
    unary main_v4158 main_v4159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4155 main_v4159 main_v4160 (mulf : (⟨S4x256x16, .f32⟩ : BufTy).Contents (Elt F) → (⟨S4x256x16, .f32⟩ : BufTy).Contents (Elt F) → (⟨S4x256x16, .f32⟩ : BufTy).Contents (Elt F)),
    nullary main_cst_414 (constant S_ .f32 0x00000000#32),
    binary main_v4160 main_cst_414 main_v4161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_415 (constantI S_ 32 207#32),
    unary main_c_415 main_v4162 (broadcastInDim S1 ![] bcast_S_S1 : (⟨S_, .i32⟩ : BufTy).Contents (Elt F) → (⟨S1, .i32⟩ : BufTy).Contents (Elt F)),
    ternary main_v4143 main_v4162 main_v4161 main_v4163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps207_ok : (stepOps207 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step207_val (V : Valuation τ sig (Elt Ideal)) :
    after (stepOps207 (F := Ideal)) V (no_index (Proc.devRef .tc main_v4155)) = stepH 207 (by decide) (V (Proc.devRef .tc main_arg0)) (V (Proc.devRef .tc main_v3)) (V (Proc.devRef .tc main_arg2)) (V (Proc.devRef .tc main_v4135))
    ∧ after (stepOps207 (F := Ideal)) V (no_index (Proc.devRef .tc main_v4163)) = stepY 207 (by decide) (V (Proc.devRef .tc main_arg3)) (stepH 207 (by decide) (V (Proc.devRef .tc main_arg0)) (V (Proc.devRef .tc main_v3)) (V (Proc.devRef .tc main_arg2)) (V (Proc.devRef .tc main_v4135))) (V (Proc.devRef .tc main_v4143)) := by
  simp only [stepOps207]
  after_results_simp
  first | exact ⟨rfl, rfl⟩ | fail "value"

end Cert.ReferenceIdeal.RefRun

end
-- ==== Proof.RefTableStep13.lean ====
/-
  Steps 208 … 223 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 208 of the loop: operations 4583 … 4604 of the program. -/
abbrev stepOps208 : List (HloOp τ sig (Elt F)) :=
  [ unary main_v3 main_v4164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4155 main_v4164 main_v4165 (mulf : (⟨S4x256x16, .f32⟩ : BufTy).Contents (Elt F) → (⟨S4x256x16, .f32⟩ : BufTy).Contents (Elt F) → (⟨S4x256x16, .f32⟩ : BufTy).Contents (Elt F)),
    unary main_arg0 main_v4166 ((extractStridedSlice S4x1x256 ![0, 208, 0] · slices_S4x512x256_S4x1x256_0_208_0) : (⟨S4x512x256, .f32⟩ : BufTy).Contents (Elt F) → (⟨S4x1x256, .f32⟩ : BufTy).Contents (Elt F)),
    reshape main_v4166 main_v4167 rfl shapeCasts_S4x1x256_S4x256,
    unary main_v4167 main_v4168 (broadcastInDim S4x256x1 ![0, 1] bcast_S4x256_S4x256x1_0_1 : (⟨S4x256, .f32⟩ : BufTy).Contents (Elt F) → (⟨S4x256x1, .f32⟩ : BufTy).Contents (Elt F)),
    unary main_arg2 main_v4169 ((extractStridedSlice S4x1x16 ![0, 208, 0] · slices_S4x512x16_S4x1x16_0_208_0) : (⟨S4x512x16, .f32⟩ : BufTy).Contents (Elt F) → (⟨S4x1x16, .f32⟩ : BufTy).Contents (Elt F)),
    reshape main_v4169 main_v4170 rfl shapeCasts_S4x1x16_S4x16,
    unary main_v4170 main_v4171 (broadcastInDim S4x1x16 ![0, 2] bcast_S4x16_S4x1x16_0_2 : (⟨S4x16, .f32⟩ : BufTy).Contents (Elt F) → (⟨S4x1x16, .f32⟩ : BufTy).Contents (Elt F)),
    unary main_v4168 main_v4172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4171 main_v4173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4172 main_v4173 main_v4174 (mulf : (⟨S4x256x16, .f32⟩ : BufTy).Contents (Elt F) → (⟨S4x256x16, .f32⟩ : BufTy).Contents (Elt F) → (⟨S4x256x16, .f32⟩ : BufTy).Contents (Elt F)),
    binary main_v4165 main_v4174 main_v4175 (addf : (⟨S4x256x16, .f32⟩ : BufTy).Contents (Elt F) → (⟨S4x256x16, .f32⟩ : BufTy).Contents (Elt F) → (⟨S4x256x16, .f32⟩ : BufTy).Contents (Elt F)),
    unary main_arg3 main_v4176 ((extractStridedSlice S4x1x16 ![0, 208, 0] · slices_S4x512x16_S4x1x16_0_208_0) : (⟨S4x512x16, .f32⟩ : BufTy).Contents (Elt F) → (⟨S4x1x16, .f32⟩ : BufTy).Contents (Elt F)),
    reshape main_v4176 main_v4177 rfl shapeCasts_S4x1x16_S4x16,
    unary main_v4177 main_v4178 (broadcastInDim S4x1x16 ![0, 2] bcast_S4x16_S4x1x16_0_2 : (⟨S4x16, .f32⟩ : BufTy).Contents (Elt F) → (⟨S4x1x16, .f32⟩ : BufTy).Contents (Elt F)),
    unary main_v4178 main_v4179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4175 main_v4179 main_v4180 (mulf : (⟨S4x256x16, .f32⟩ : BufTy).Contents (Elt F) → (⟨S4x256x16, .f32⟩ : BufTy).Contents (Elt F) → (⟨S4x256x16, .f32⟩ : BufTy).Contents (Elt F)),
    nullary main_cst_416 (constant S_ .f32 0x00000000#32),
    binary main_v4180 main_cst_416 main_v4181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_417 (constantI S_ 32 208#32),
    unary main_c_417 main_v4182 (broadcastInDim S1 ![] bcast_S_S1 : (⟨S_, .i32⟩ : BufTy).Contents (Elt F) → (⟨S1, .i32⟩ : BufTy).Contents (Elt F)),
    ternary main_v4163 main_v4182 main_v4181 main_v4183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps208_ok : (stepOps208 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step208_val (V : Valuation τ sig (Elt Ideal)) :
    after (stepOps208 (F := Ideal)) V (no_index (Proc.devRef .tc main_v4175)) = stepH 208 (by decide) (V (Proc.devRef .tc main_arg0)) (V (Proc.devRef .tc main_v3)) (V (Proc.devRef .tc main_arg2)) (V (Proc.devRef .tc main_v4155))
    ∧ after (stepOps208 (F := Ideal)) V (no_index (Proc.devRef .tc main_v4183)) = stepY 208 (by decide) (V (Proc.devRef .tc main_arg3)) (stepH 208 (by decide) (V (Proc.devRef .tc main_arg0)) (V (Proc.devRef .tc main_v3)) (V (Proc.devRef .tc main_arg2)) (V (Proc.devRef .tc main_v4155))) (V (Proc.devRef .tc main_v4163)) := by
  simp only [stepOps208]
  after_results_simp
  first | exact ⟨rfl, rfl⟩ | fail "value"
/-- Step 209 of the loop: operations 4605 … 4626 of the program. -/
abbrev stepOps209 : List (HloOp τ sig (Elt F)) :=
  [ unary main_v3 main_v4184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4175 main_v4184 main_v4185 (mulf : (⟨S4x256x16, .f32⟩ : BufTy).Contents (Elt F) → (⟨S4x256x16, .f32⟩ : BufTy).Contents (Elt F) → (⟨S4x256x16, .f32⟩ : BufTy).Contents (Elt F)),
    unary main_arg0 main_v4186 ((extractStridedSlice S4x1x256 ![0, 209, 0] · slices_S4x512x256_S4x1x256_0_209_0) : (⟨S4x512x256, .f32⟩ : BufTy).Contents (Elt F) → (⟨S4x1x256, .f32⟩ : BufTy).Contents (Elt F)),
    reshape main_v4186 main_v4187 rfl shapeCasts_S4x1x256_S4x256,
    unary main_v4187 main_v4188 (broadcastInDim S4x256x1 ![0, 1] bcast_S4x256_S4x256x1_0_1 : (⟨S4x256, .f32⟩ : BufTy).Contents (Elt F) → (⟨S4x256x1, .f32⟩ : BufTy).Contents (Elt F)),
    unary main_arg2 main_v4189 ((extractStridedSlice S4x1x16 ![0, 209, 0] · slices_S4x512x16_S4x1x16_0_209_0) : (⟨S4x512x16, .f32⟩ : BufTy).Contents (Elt F) → (⟨S4x1x16, .f32⟩ : BufTy).Contents (Elt F)),
    reshape main_v4189 main_v4190 rfl shapeCasts_S4x1x16_S4x16,
    unary main_v4190 main_v4191 (broadcastInDim S4x1x16 ![0, 2] bcast_S4x16_S4x1x16_0_2 : (⟨S4x16, .f32⟩ : BufTy).Contents (Elt F) → (⟨S4x1x16, .f32⟩ : BufTy).Contents (Elt F)),
    unary main_v4188 main_v4192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4191 main_v4193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4192 main_v4193 main_v4194 (mulf : (⟨S4x256x16, .f32⟩ : BufTy).Contents (Elt F) → (⟨S4x256x16, .f32⟩ : BufTy).Contents (Elt F) → (⟨S4x256x16, .f32⟩ : BufTy).Contents (Elt F)),
    binary main_v4185 main_v4194 main_v4195 (addf : (⟨S4x256x16, .f32⟩ : BufTy).Contents (Elt F) → (⟨S4x256x16, .f32⟩ : BufTy).Contents (Elt F) → (⟨S4x256x16, .f32⟩ : BufTy).Contents (Elt F)),
    unary main_arg3 main_v4196 ((extractStridedSlice S4x1x16 ![0, 209, 0] · slices_S4x512x16_S4x1x16_0_209_0) : (⟨S4x512x16, .f32⟩ : BufTy).Contents (Elt F) → (⟨S4x1x16, .f32⟩ : BufTy).Contents (Elt F)),
    reshape main_v4196 main_v4197 rfl shapeCasts_S4x1x16_S4x16,
    unary main_v4197 main_v4198 (broadcastInDim S4x1x16 ![0, 2] bcast_S4x16_S4x1x16_0_2 : (⟨S4x16, .f32⟩ : BufTy).Contents (Elt F) → (⟨S4x1x16, .f32⟩ : BufTy).Contents (Elt F)),
    unary main_v4198 main_v4199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4195 main_v4199 main_v4200 (mulf : (⟨S4x256x16, .f32⟩ : BufTy).Contents (Elt F) → (⟨S4x256x16, .f32⟩ : BufTy).Contents (Elt F) → (⟨S4x256x16, .f32⟩ : BufTy).Contents (Elt F)),
    nullary main_cst_418 (constant S_ .f32 0x00000000#32),
    binary main_v4200 main_cst_418 main_v4201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_419 (constantI S_ 32 209#32),
    unary main_c_419 main_v4202 (broadcastInDim S1 ![] bcast_S_S1 : (⟨S_, .i32⟩ : BufTy).Contents (Elt F) → (⟨S1, .i32⟩ : BufTy).Contents (Elt F)),
    ternary main_v4183 main_v4202 main_v4201 main_v4203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps209_ok : (stepOps209 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step209_val (V : Valuation τ sig (Elt Ideal)) :
    after (stepOps209 (F := Ideal)) V (no_index (Proc.devRef .tc main_v4195)) = stepH 209 (by decide) (V (Proc.devRef .tc main_arg0)) (V (Proc.devRef .tc main_v3)) (V (Proc.devRef .tc main_arg2)) (V (Proc.devRef .tc main_v4175))
    ∧ after (stepOps209 (F := Ideal)) V (no_index (Proc.devRef .tc main_v4203)) = stepY 209 (by decide) (V (Proc.devRef .tc main_arg3)) (stepH 209 (by decide) (V (Proc.devRef .tc main_arg0)) (V (Proc.devRef .tc main_v3)) (V (Proc.devRef .tc main_arg2)) (V (Proc.devRef .tc main_v4175))) (V (Proc.devRef .tc main_v4183)) := by
  simp only [stepOps209]
  after_results_simp
  first | exact ⟨rfl, rfl⟩ | fail "value"
/-- Step 210 of the loop: operations 4627 … 4648 of the program. -/
abbrev stepOps210 : List (HloOp τ sig (Elt F)) :=
  [ unary main_v3 main_v4204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4195 main_v4204 main_v4205 (mulf : (⟨S4x256x16, .f32⟩ : BufTy).Contents (Elt F) → (⟨S4x256x16, .f32⟩ : BufTy).Contents (Elt F) → (⟨S4x256x16, .f32⟩ : BufTy).Contents (Elt F)),
    unary main_arg0 main_v4206 ((extractStridedSlice S4x1x256 ![0, 210, 0] · slices_S4x512x256_S4x1x256_0_210_0) : (⟨S4x512x256, .f32⟩ : BufTy).Contents (Elt F) → (⟨S4x1x256, .f32⟩ : BufTy).Contents (Elt F)),
    reshape main_v4206 main_v4207 rfl shapeCasts_S4x1x256_S4x256,
    unary main_v4207 main_v4208 (broadcastInDim S4x256x1 ![0, 1] bcast_S4x256_S4x256x1_0_1 : (⟨S4x256, .f32⟩ : BufTy).Contents (Elt F) → (⟨S4x256x1, .f32⟩ : BufTy).Contents (Elt F)),
    unary main_arg2 main_v4209 ((extractStridedSlice S4x1x16 ![0, 210, 0] · slices_S4x512x16_S4x1x16_0_210_0) : (⟨S4x512x16, .f32⟩ : BufTy).Contents (Elt F) → (⟨S4x1x16, .f32⟩ : BufTy).Contents (Elt F)),
    reshape main_v4209 main_v4210 rfl shapeCasts_S4x1x16_S4x16,
    unary main_v4210 main_v4211 (broadcastInDim S4x1x16 ![0, 2] bcast_S4x16_S4x1x16_0_2 : (⟨S4x16, .f32⟩ : BufTy).Contents (Elt F) → (⟨S4x1x16, .f32⟩ : BufTy).Contents (Elt F)),
    unary main_v4208 main_v4212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4211 main_v4213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4212 main_v4213 main_v4214 (mulf : (⟨S4x256x16, .f32⟩ : BufTy).Contents (Elt F) → (⟨S4x256x16, .f32⟩ : BufTy).Contents (Elt F) → (⟨S4x256x16, .f32⟩ : BufTy).Contents (Elt F)),
    binary main_v4205 main_v4214 main_v4215 (addf : (⟨S4x256x16, .f32⟩ : BufTy).Contents (Elt F) → (⟨S4x256x16, .f32⟩ : BufTy).Contents (Elt F) → (⟨S4x256x16, .f32⟩ : BufTy).Contents (Elt F)),
    unary main_arg3 main_v4216 ((extractStridedSlice S4x1x16 ![0, 210, 0] · slices_S4x512x16_S4x1x16_0_210_0) : (⟨S4x512x16, .f32⟩ : BufTy).Contents (Elt F) → (⟨S4x1x16, .f32⟩ : BufTy).Contents (Elt F)),
    reshape main_v4216 main_v4217 rfl shapeCasts_S4x1x16_S4x16,
    unary main_v4217 main_v4218 (broadcastInDim S4x1x16 ![0, 2] bcast_S4x16_S4x1x16_0_2 : (⟨S4x16, .f32⟩ : BufTy).Contents (Elt F) → (⟨S4x1x16, .f32⟩ : BufTy).Contents (Elt F)),
    unary main_v4218 main_v4219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4215 main_v4219 main_v4220 (mulf : (⟨S4x256x16, .f32⟩ : BufTy).Contents (Elt F) → (⟨S4x256x16, .f32⟩ : BufTy).Contents (Elt F) → (⟨S4x256x16, .f32⟩ : BufTy).Contents (Elt F)),
    nullary main_cst_420 (constant S_ .f32 0x00000000#32),
    binary main_v4220 main_cst_420 main_v4221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_421 (constantI S_ 32 210#32),
    unary main_c_421 main_v4222 (broadcastInDim S1 ![] bcast_S_S1 : (⟨S_, .i32⟩ : BufTy).Contents (Elt F) → (⟨S1, .i32⟩ : BufTy).Contents (Elt F)),
    ternary main_v4203 main_v4222 main_v4221 main_v4223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps210_ok : (stepOps210 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step210_val (V : Valuation τ sig (Elt Ideal)) :
    after (stepOps210 (F := Ideal)) V (no_index (Proc.devRef .tc main_v4215)) = stepH 210 (by decide) (V (Proc.devRef .tc main_arg0)) (V (Proc.devRef .tc main_v3)) (V (Proc.devRef .tc main_arg2)) (V (Proc.devRef .tc main_v4195))
    ∧ after (stepOps210 (F := Ideal)) V (no_index (Proc.devRef .tc main_v4223)) = stepY 210 (by decide) (V (Proc.devRef .tc main_arg3)) (stepH 210 (by decide) (V (Proc.devRef .tc main_arg0)) (V (Proc.devRef .tc main_v3)) (V (Proc.devRef .tc main_arg2)) (V (Proc.devRef .tc main_v4195))) (V (Proc.devRef .tc main_v4203)) := by
  simp only [stepOps210]
  after_results_simp
  first | exact ⟨rfl, rfl⟩ | fail "value"
/-- Step 211 of the loop: operations 4649 … 4670 of the program. -/
abbrev stepOps211 : List (HloOp τ sig (Elt F)) :=
  [ unary main_v3 main_v4224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4215 main_v4224 main_v4225 (mulf : (⟨S4x256x16, .f32⟩ : BufTy).Contents (Elt F) → (⟨S4x256x16, .f32⟩ : BufTy).Contents (Elt F) → (⟨S4x256x16, .f32⟩ : BufTy).Contents (Elt F)),
    unary main_arg0 main_v4226 ((extractStridedSlice S4x1x256 ![0, 211, 0] · slices_S4x512x256_S4x1x256_0_211_0) : (⟨S4x512x256, .f32⟩ : BufTy).Contents (Elt F) → (⟨S4x1x256, .f32⟩ : BufTy).Contents (Elt F)),
    reshape main_v4226 main_v4227 rfl shapeCasts_S4x1x256_S4x256,
    unary main_v4227 main_v4228 (broadcastInDim S4x256x1 ![0, 1] bcast_S4x256_S4x256x1_0_1 : (⟨S4x256, .f32⟩ : BufTy).Contents (Elt F) → (⟨S4x256x1, .f32⟩ : BufTy).Contents (Elt F)),
    unary main_arg2 main_v4229 ((extractStridedSlice S4x1x16 ![0, 211, 0] · slices_S4x512x16_S4x1x16_0_211_0) : (⟨S4x512x16, .f32⟩ : BufTy).Contents (Elt F) → (⟨S4x1x16, .f32⟩ : BufTy).Contents (Elt F)),
    reshape main_v4229 main_v4230 rfl shapeCasts_S4x1x16_S4x16,
    unary main_v4230 main_v4231 (broadcastInDim S4x1x16 ![0, 2] bcast_S4x16_S4x1x16_0_2 : (⟨S4x16, .f32⟩ : BufTy).Contents (Elt F) → (⟨S4x1x16, .f32⟩ : BufTy).Contents (Elt F)),
    unary main_v4228 main_v4232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4231 main_v4233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4232 main_v4233 main_v4234 (mulf : (⟨S4x256x16, .f32⟩ : BufTy).Contents (Elt F) → (⟨S4x256x16, .f32⟩ : BufTy).Contents (Elt F) → (⟨S4x256x16, .f32⟩ : BufTy).Contents (Elt F)),
    binary main_v4225 main_v4234 main_v4235 (addf : (⟨S4x256x16, .f32⟩ : BufTy).Contents (Elt F) → (⟨S4x256x16, .f32⟩ : BufTy).Contents (Elt F) → (⟨S4x256x16, .f32⟩ : BufTy).Contents (Elt F)),
    unary main_arg3 main_v4236 ((extractStridedSlice S4x1x16 ![0, 211, 0] · slices_S4x512x16_S4x1x16_0_211_0) : (⟨S4x512x16, .f32⟩ : BufTy).Contents (Elt F) → (⟨S4x1x16, .f32⟩ : BufTy).Contents (Elt F)),
    reshape main_v4236 main_v4237 rfl shapeCasts_S4x1x16_S4x16,
    unary main_v4237 main_v4238 (broadcastInDim S4x1x16 ![0, 2] bcast_S4x16_S4x1x16_0_2 : (⟨S4x16, .f32⟩ : BufTy).Contents (Elt F) → (⟨S4x1x16, .f32⟩ : BufTy).Contents (Elt F)),
    unary main_v4238 main_v4239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4235 main_v4239 main_v4240 (mulf : (⟨S4x256x16, .f32⟩ : BufTy).Contents (Elt F) → (⟨S4x256x16, .f32⟩ : BufTy).Contents (Elt F) → (⟨S4x256x16, .f32⟩ : BufTy).Contents (Elt F)),
    nullary main_cst_422 (constant S_ .f32 0x00000000#32),
    binary main_v4240 main_cst_422 main_v4241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_423 (constantI S_ 32 211#32),
    unary main_c_423 main_v4242 (broadcastInDim S1 ![] bcast_S_S1 : (⟨S_, .i32⟩ : BufTy).Contents (Elt F) → (⟨S1, .i32⟩ : BufTy).Contents (Elt F)),
    ternary main_v4223 main_v4242 main_v4241 main_v4243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps211_ok : (stepOps211 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step211_val (V : Valuation τ sig (Elt Ideal)) :
    after (stepOps211 (F := Ideal)) V (no_index (Proc.devRef .tc main_v4235)) = stepH 211 (by decide) (V (Proc.devRef .tc main_arg0)) (V (Proc.devRef .tc main_v3)) (V (Proc.devRef .tc main_arg2)) (V (Proc.devRef .tc main_v4215))
    ∧ after (stepOps211 (F := Ideal)) V (no_index (Proc.devRef .tc main_v4243)) = stepY 211 (by decide) (V (Proc.devRef .tc main_arg3)) (stepH 211 (by decide) (V (Proc.devRef .tc main_arg0)) (V (Proc.devRef .tc main_v3)) (V (Proc.devRef .tc main_arg2)) (V (Proc.devRef .tc main_v4215))) (V (Proc.devRef .tc main_v4223)) := by
  simp only [stepOps211]
  after_results_simp
  first | exact ⟨rfl, rfl⟩ | fail "value"
/-- Step 212 of the loop: operations 4671 … 4692 of the program. -/
abbrev stepOps212 : List (HloOp τ sig (Elt F)) :=
  [ unary main_v3 main_v4244 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4235 main_v4244 main_v4245 (mulf : (⟨S4x256x16, .f32⟩ : BufTy).Contents (Elt F) → (⟨S4x256x16, .f32⟩ : BufTy).Contents (Elt F) → (⟨S4x256x16, .f32⟩ : BufTy).Contents (Elt F)),
    unary main_arg0 main_v4246 ((extractStridedSlice S4x1x256 ![0, 212, 0] · slices_S4x512x256_S4x1x256_0_212_0) : (⟨S4x512x256, .f32⟩ : BufTy).Contents (Elt F) → (⟨S4x1x256, .f32⟩ : BufTy).Contents (Elt F)),
    reshape main_v4246 main_v4247 rfl shapeCasts_S4x1x256_S4x256,
    unary main_v4247 main_v4248 (broadcastInDim S4x256x1 ![0, 1] bcast_S4x256_S4x256x1_0_1 : (⟨S4x256, .f32⟩ : BufTy).Contents (Elt F) → (⟨S4x256x1, .f32⟩ : BufTy).Contents (Elt F)),
    unary main_arg2 main_v4249 ((extractStridedSlice S4x1x16 ![0, 212, 0] · slices_S4x512x16_S4x1x16_0_212_0) : (⟨S4x512x16, .f32⟩ : BufTy).Contents (Elt F) → (⟨S4x1x16, .f32⟩ : BufTy).Contents (Elt F)),
    reshape main_v4249 main_v4250 rfl shapeCasts_S4x1x16_S4x16,
    unary main_v4250 main_v4251 (broadcastInDim S4x1x16 ![0, 2] bcast_S4x16_S4x1x16_0_2 : (⟨S4x16, .f32⟩ : BufTy).Contents (Elt F) → (⟨S4x1x16, .f32⟩ : BufTy).Contents (Elt F)),
    unary main_v4248 main_v4252 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4251 main_v4253 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4252 main_v4253 main_v4254 (mulf : (⟨S4x256x16, .f32⟩ : BufTy).Contents (Elt F) → (⟨S4x256x16, .f32⟩ : BufTy).Contents (Elt F) → (⟨S4x256x16, .f32⟩ : BufTy).Contents (Elt F)),
    binary main_v4245 main_v4254 main_v4255 (addf : (⟨S4x256x16, .f32⟩ : BufTy).Contents (Elt F) → (⟨S4x256x16, .f32⟩ : BufTy).Contents (Elt F) → (⟨S4x256x16, .f32⟩ : BufTy).Contents (Elt F)),
    unary main_arg3 main_v4256 ((extractStridedSlice S4x1x16 ![0, 212, 0] · slices_S4x512x16_S4x1x16_0_212_0) : (⟨S4x512x16, .f32⟩ : BufTy).Contents (Elt F) → (⟨S4x1x16, .f32⟩ : BufTy).Contents (Elt F)),
    reshape main_v4256 main_v4257 rfl shapeCasts_S4x1x16_S4x16,
    unary main_v4257 main_v4258 (broadcastInDim S4x1x16 ![0, 2] bcast_S4x16_S4x1x16_0_2 : (⟨S4x16, .f32⟩ : BufTy).Contents (Elt F) → (⟨S4x1x16, .f32⟩ : BufTy).Contents (Elt F)),
    unary main_v4258 main_v4259 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4255 main_v4259 main_v4260 (mulf : (⟨S4x256x16, .f32⟩ : BufTy).Contents (Elt F) → (⟨S4x256x16, .f32⟩ : BufTy).Contents (Elt F) → (⟨S4x256x16, .f32⟩ : BufTy).Contents (Elt F)),
    nullary main_cst_424 (constant S_ .f32 0x00000000#32),
    binary main_v4260 main_cst_424 main_v4261 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_425 (constantI S_ 32 212#32),
    unary main_c_425 main_v4262 (broadcastInDim S1 ![] bcast_S_S1 : (⟨S_, .i32⟩ : BufTy).Contents (Elt F) → (⟨S1, .i32⟩ : BufTy).Contents (Elt F)),
    ternary main_v4243 main_v4262 main_v4261 main_v4263 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps212_ok : (stepOps212 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step212_val (V : Valuation τ sig (Elt Ideal)) :
    after (stepOps212 (F := Ideal)) V (no_index (Proc.devRef .tc main_v4255)) = stepH 212 (by decide) (V (Proc.devRef .tc main_arg0)) (V (Proc.devRef .tc main_v3)) (V (Proc.devRef .tc main_arg2)) (V (Proc.devRef .tc main_v4235))
    ∧ after (stepOps212 (F := Ideal)) V (no_index (Proc.devRef .tc main_v4263)) = stepY 212 (by decide) (V (Proc.devRef .tc main_arg3)) (stepH 212 (by decide) (V (Proc.devRef .tc main_arg0)) (V (Proc.devRef .tc main_v3)) (V (Proc.devRef .tc main_arg2)) (V (Proc.devRef .tc main_v4235))) (V (Proc.devRef .tc main_v4243)) := by
  simp only [stepOps212]
  after_results_simp
  first | exact ⟨rfl, rfl⟩ | fail "value"
/-- Step 213 of the loop: operations 4693 … 4714 of the program. -/
abbrev stepOps213 : List (HloOp τ sig (Elt F)) :=
  [ unary main_v3 main_v4264 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4255 main_v4264 main_v4265 (mulf : (⟨S4x256x16, .f32⟩ : BufTy).Contents (Elt F) → (⟨S4x256x16, .f32⟩ : BufTy).Contents (Elt F) → (⟨S4x256x16, .f32⟩ : BufTy).Contents (Elt F)),
    unary main_arg0 main_v4266 ((extractStridedSlice S4x1x256 ![0, 213, 0] · slices_S4x512x256_S4x1x256_0_213_0) : (⟨S4x512x256, .f32⟩ : BufTy).Contents (Elt F) → (⟨S4x1x256, .f32⟩ : BufTy).Contents (Elt F)),
    reshape main_v4266 main_v4267 rfl shapeCasts_S4x1x256_S4x256,
    unary main_v4267 main_v4268 (broadcastInDim S4x256x1 ![0, 1] bcast_S4x256_S4x256x1_0_1 : (⟨S4x256, .f32⟩ : BufTy).Contents (Elt F) → (⟨S4x256x1, .f32⟩ : BufTy).Contents (Elt F)),
    unary main_arg2 main_v4269 ((extractStridedSlice S4x1x16 ![0, 213, 0] · slices_S4x512x16_S4x1x16_0_213_0) : (⟨S4x512x16, .f32⟩ : BufTy).Contents (Elt F) → (⟨S4x1x16, .f32⟩ : BufTy).Contents (Elt F)),
    reshape main_v4269 main_v4270 rfl shapeCasts_S4x1x16_S4x16,
    unary main_v4270 main_v4271 (broadcastInDim S4x1x16 ![0, 2] bcast_S4x16_S4x1x16_0_2 : (⟨S4x16, .f32⟩ : BufTy).Contents (Elt F) → (⟨S4x1x16, .f32⟩ : BufTy).Contents (Elt F)),
    unary main_v4268 main_v4272 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4271 main_v4273 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4272 main_v4273 main_v4274 (mulf : (⟨S4x256x16, .f32⟩ : BufTy).Contents (Elt F) → (⟨S4x256x16, .f32⟩ : BufTy).Contents (Elt F) → (⟨S4x256x16, .f32⟩ : BufTy).Contents (Elt F)),
    binary main_v4265 main_v4274 main_v4275 (addf : (⟨S4x256x16, .f32⟩ : BufTy).Contents (Elt F) → (⟨S4x256x16, .f32⟩ : BufTy).Contents (Elt F) → (⟨S4x256x16, .f32⟩ : BufTy).Contents (Elt F)),
    unary main_arg3 main_v4276 ((extractStridedSlice S4x1x16 ![0, 213, 0] · slices_S4x512x16_S4x1x16_0_213_0) : (⟨S4x512x16, .f32⟩ : BufTy).Contents (Elt F) → (⟨S4x1x16, .f32⟩ : BufTy).Contents (Elt F)),
    reshape main_v4276 main_v4277 rfl shapeCasts_S4x1x16_S4x16,
    unary main_v4277 main_v4278 (broadcastInDim S4x1x16 ![0, 2] bcast_S4x16_S4x1x16_0_2 : (⟨S4x16, .f32⟩ : BufTy).Contents (Elt F) → (⟨S4x1x16, .f32⟩ : BufTy).Contents (Elt F)),
    unary main_v4278 main_v4279 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4275 main_v4279 main_v4280 (mulf : (⟨S4x256x16, .f32⟩ : BufTy).Contents (Elt F) → (⟨S4x256x16, .f32⟩ : BufTy).Contents (Elt F) → (⟨S4x256x16, .f32⟩ : BufTy).Contents (Elt F)),
    nullary main_cst_426 (constant S_ .f32 0x00000000#32),
    binary main_v4280 main_cst_426 main_v4281 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_427 (constantI S_ 32 213#32),
    unary main_c_427 main_v4282 (broadcastInDim S1 ![] bcast_S_S1 : (⟨S_, .i32⟩ : BufTy).Contents (Elt F) → (⟨S1, .i32⟩ : BufTy).Contents (Elt F)),
    ternary main_v4263 main_v4282 main_v4281 main_v4283 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps213_ok : (stepOps213 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step213_val (V : Valuation τ sig (Elt Ideal)) :
    after (stepOps213 (F := Ideal)) V (no_index (Proc.devRef .tc main_v4275)) = stepH 213 (by decide) (V (Proc.devRef .tc main_arg0)) (V (Proc.devRef .tc main_v3)) (V (Proc.devRef .tc main_arg2)) (V (Proc.devRef .tc main_v4255))
    ∧ after (stepOps213 (F := Ideal)) V (no_index (Proc.devRef .tc main_v4283)) = stepY 213 (by decide) (V (Proc.devRef .tc main_arg3)) (stepH 213 (by decide) (V (Proc.devRef .tc main_arg0)) (V (Proc.devRef .tc main_v3)) (V (Proc.devRef .tc main_arg2)) (V (Proc.devRef .tc main_v4255))) (V (Proc.devRef .tc main_v4263)) := by
  simp only [stepOps213]
  after_results_simp
  first | exact ⟨rfl, rfl⟩ | fail "value"
/-- Step 214 of the loop: operations 4715 … 4736 of the program. -/
abbrev stepOps214 : List (HloOp τ sig (Elt F)) :=
  [ unary main_v3 main_v4284 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4275 main_v4284 main_v4285 (mulf : (⟨S4x256x16, .f32⟩ : BufTy).Contents (Elt F) → (⟨S4x256x16, .f32⟩ : BufTy).Contents (Elt F) → (⟨S4x256x16, .f32⟩ : BufTy).Contents (Elt F)),
    unary main_arg0 main_v4286 ((extractStridedSlice S4x1x256 ![0, 214, 0] · slices_S4x512x256_S4x1x256_0_214_0) : (⟨S4x512x256, .f32⟩ : BufTy).Contents (Elt F) → (⟨S4x1x256, .f32⟩ : BufTy).Contents (Elt F)),
    reshape main_v4286 main_v4287 rfl shapeCasts_S4x1x256_S4x256,
    unary main_v4287 main_v4288 (broadcastInDim S4x256x1 ![0, 1] bcast_S4x256_S4x256x1_0_1 : (⟨S4x256, .f32⟩ : BufTy).Contents (Elt F) → (⟨S4x256x1, .f32⟩ : BufTy).Contents (Elt F)),
    unary main_arg2 main_v4289 ((extractStridedSlice S4x1x16 ![0, 214, 0] · slices_S4x512x16_S4x1x16_0_214_0) : (⟨S4x512x16, .f32⟩ : BufTy).Contents (Elt F) → (⟨S4x1x16, .f32⟩ : BufTy).Contents (Elt F)),
    reshape main_v4289 main_v4290 rfl shapeCasts_S4x1x16_S4x16,
    unary main_v4290 main_v4291 (broadcastInDim S4x1x16 ![0, 2] bcast_S4x16_S4x1x16_0_2 : (⟨S4x16, .f32⟩ : BufTy).Contents (Elt F) → (⟨S4x1x16, .f32⟩ : BufTy).Contents (Elt F)),
    unary main_v4288 main_v4292 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4291 main_v4293 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4292 main_v4293 main_v4294 (mulf : (⟨S4x256x16, .f32⟩ : BufTy).Contents (Elt F) → (⟨S4x256x16, .f32⟩ : BufTy).Contents (Elt F) → (⟨S4x256x16, .f32⟩ : BufTy).Contents (Elt F)),
    binary main_v4285 main_v4294 main_v4295 (addf : (⟨S4x256x16, .f32⟩ : BufTy).Contents (Elt F) → (⟨S4x256x16, .f32⟩ : BufTy).Contents (Elt F) → (⟨S4x256x16, .f32⟩ : BufTy).Contents (Elt F)),
    unary main_arg3 main_v4296 ((extractStridedSlice S4x1x16 ![0, 214, 0] · slices_S4x512x16_S4x1x16_0_214_0) : (⟨S4x512x16, .f32⟩ : BufTy).Contents (Elt F) → (⟨S4x1x16, .f32⟩ : BufTy).Contents (Elt F)),
    reshape main_v4296 main_v4297 rfl shapeCasts_S4x1x16_S4x16,
    unary main_v4297 main_v4298 (broadcastInDim S4x1x16 ![0, 2] bcast_S4x16_S4x1x16_0_2 : (⟨S4x16, .f32⟩ : BufTy).Contents (Elt F) → (⟨S4x1x16, .f32⟩ : BufTy).Contents (Elt F)),
    unary main_v4298 main_v4299 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4295 main_v4299 main_v4300 (mulf : (⟨S4x256x16, .f32⟩ : BufTy).Contents (Elt F) → (⟨S4x256x16, .f32⟩ : BufTy).Contents (Elt F) → (⟨S4x256x16, .f32⟩ : BufTy).Contents (Elt F)),
    nullary main_cst_428 (constant S_ .f32 0x00000000#32),
    binary main_v4300 main_cst_428 main_v4301 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_429 (constantI S_ 32 214#32),
    unary main_c_429 main_v4302 (broadcastInDim S1 ![] bcast_S_S1 : (⟨S_, .i32⟩ : BufTy).Contents (Elt F) → (⟨S1, .i32⟩ : BufTy).Contents (Elt F)),
    ternary main_v4283 main_v4302 main_v4301 main_v4303 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps214_ok : (stepOps214 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step214_val (V : Valuation τ sig (Elt Ideal)) :
    after (stepOps214 (F := Ideal)) V (no_index (Proc.devRef .tc main_v4295)) = stepH 214 (by decide) (V (Proc.devRef .tc main_arg0)) (V (Proc.devRef .tc main_v3)) (V (Proc.devRef .tc main_arg2)) (V (Proc.devRef .tc main_v4275))
    ∧ after (stepOps214 (F := Ideal)) V (no_index (Proc.devRef .tc main_v4303)) = stepY 214 (by decide) (V (Proc.devRef .tc main_arg3)) (stepH 214 (by decide) (V (Proc.devRef .tc main_arg0)) (V (Proc.devRef .tc main_v3)) (V (Proc.devRef .tc main_arg2)) (V (Proc.devRef .tc main_v4275))) (V (Proc.devRef .tc main_v4283)) := by
  simp only [stepOps214]
  after_results_simp
  first | exact ⟨rfl, rfl⟩ | fail "value"
/-- Step 215 of the loop: operations 4737 … 4758 of the program. -/
abbrev stepOps215 : List (HloOp τ sig (Elt F)) :=
  [ unary main_v3 main_v4304 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4295 main_v4304 main_v4305 (mulf : (⟨S4x256x16, .f32⟩ : BufTy).Contents (Elt F) → (⟨S4x256x16, .f32⟩ : BufTy).Contents (Elt F) → (⟨S4x256x16, .f32⟩ : BufTy).Contents (Elt F)),
    unary main_arg0 main_v4306 ((extractStridedSlice S4x1x256 ![0, 215, 0] · slices_S4x512x256_S4x1x256_0_215_0) : (⟨S4x512x256, .f32⟩ : BufTy).Contents (Elt F) → (⟨S4x1x256, .f32⟩ : BufTy).Contents (Elt F)),
    reshape main_v4306 main_v4307 rfl shapeCasts_S4x1x256_S4x256,
    unary main_v4307 main_v4308 (broadcastInDim S4x256x1 ![0, 1] bcast_S4x256_S4x256x1_0_1 : (⟨S4x256, .f32⟩ : BufTy).Contents (Elt F) → (⟨S4x256x1, .f32⟩ : BufTy).Contents (Elt F)),
    unary main_arg2 main_v4309 ((extractStridedSlice S4x1x16 ![0, 215, 0] · slices_S4x512x16_S4x1x16_0_215_0) : (⟨S4x512x16, .f32⟩ : BufTy).Contents (Elt F) → (⟨S4x1x16, .f32⟩ : BufTy).Contents (Elt F)),
    reshape main_v4309 main_v4310 rfl shapeCasts_S4x1x16_S4x16,
    unary main_v4310 main_v4311 (broadcastInDim S4x1x16 ![0, 2] bcast_S4x16_S4x1x16_0_2 : (⟨S4x16, .f32⟩ : BufTy).Contents (Elt F) → (⟨S4x1x16, .f32⟩ : BufTy).Contents (Elt F)),
    unary main_v4308 main_v4312 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4311 main_v4313 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4312 main_v4313 main_v4314 (mulf : (⟨S4x256x16, .f32⟩ : BufTy).Contents (Elt F) → (⟨S4x256x16, .f32⟩ : BufTy).Contents (Elt F) → (⟨S4x256x16, .f32⟩ : BufTy).Contents (Elt F)),
    binary main_v4305 main_v4314 main_v4315 (addf : (⟨S4x256x16, .f32⟩ : BufTy).Contents (Elt F) → (⟨S4x256x16, .f32⟩ : BufTy).Contents (Elt F) → (⟨S4x256x16, .f32⟩ : BufTy).Contents (Elt F)),
    unary main_arg3 main_v4316 ((extractStridedSlice S4x1x16 ![0, 215, 0] · slices_S4x512x16_S4x1x16_0_215_0) : (⟨S4x512x16, .f32⟩ : BufTy).Contents (Elt F) → (⟨S4x1x16, .f32⟩ : BufTy).Contents (Elt F)),
    reshape main_v4316 main_v4317 rfl shapeCasts_S4x1x16_S4x16,
    unary main_v4317 main_v4318 (broadcastInDim S4x1x16 ![0, 2] bcast_S4x16_S4x1x16_0_2 : (⟨S4x16, .f32⟩ : BufTy).Contents (Elt F) → (⟨S4x1x16, .f32⟩ : BufTy).Contents (Elt F)),
    unary main_v4318 main_v4319 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4315 main_v4319 main_v4320 (mulf : (⟨S4x256x16, .f32⟩ : BufTy).Contents (Elt F) → (⟨S4x256x16, .f32⟩ : BufTy).Contents (Elt F) → (⟨S4x256x16, .f32⟩ : BufTy).Contents (Elt F)),
    nullary main_cst_430 (constant S_ .f32 0x00000000#32),
    binary main_v4320 main_cst_430 main_v4321 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_431 (constantI S_ 32 215#32),
    unary main_c_431 main_v4322 (broadcastInDim S1 ![] bcast_S_S1 : (⟨S_, .i32⟩ : BufTy).Contents (Elt F) → (⟨S1, .i32⟩ : BufTy).Contents (Elt F)),
    ternary main_v4303 main_v4322 main_v4321 main_v4323 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps215_ok : (stepOps215 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step215_val (V : Valuation τ sig (Elt Ideal)) :
    after (stepOps215 (F := Ideal)) V (no_index (Proc.devRef .tc main_v4315)) = stepH 215 (by decide) (V (Proc.devRef .tc main_arg0)) (V (Proc.devRef .tc main_v3)) (V (Proc.devRef .tc main_arg2)) (V (Proc.devRef .tc main_v4295))
    ∧ after (stepOps215 (F := Ideal)) V (no_index (Proc.devRef .tc main_v4323)) = stepY 215 (by decide) (V (Proc.devRef .tc main_arg3)) (stepH 215 (by decide) (V (Proc.devRef .tc main_arg0)) (V (Proc.devRef .tc main_v3)) (V (Proc.devRef .tc main_arg2)) (V (Proc.devRef .tc main_v4295))) (V (Proc.devRef .tc main_v4303)) := by
  simp only [stepOps215]
  after_results_simp
  first | exact ⟨rfl, rfl⟩ | fail "value"
/-- Step 216 of the loop: operations 4759 … 4780 of the program. -/
abbrev stepOps216 : List (HloOp τ sig (Elt F)) :=
  [ unary main_v3 main_v4324 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4315 main_v4324 main_v4325 (mulf : (⟨S4x256x16, .f32⟩ : BufTy).Contents (Elt F) → (⟨S4x256x16, .f32⟩ : BufTy).Contents (Elt F) → (⟨S4x256x16, .f32⟩ : BufTy).Contents (Elt F)),
    unary main_arg0 main_v4326 ((extractStridedSlice S4x1x256 ![0, 216, 0] · slices_S4x512x256_S4x1x256_0_216_0) : (⟨S4x512x256, .f32⟩ : BufTy).Contents (Elt F) → (⟨S4x1x256, .f32⟩ : BufTy).Contents (Elt F)),
    reshape main_v4326 main_v4327 rfl shapeCasts_S4x1x256_S4x256,
    unary main_v4327 main_v4328 (broadcastInDim S4x256x1 ![0, 1] bcast_S4x256_S4x256x1_0_1 : (⟨S4x256, .f32⟩ : BufTy).Contents (Elt F) → (⟨S4x256x1, .f32⟩ : BufTy).Contents (Elt F)),
    unary main_arg2 main_v4329 ((extractStridedSlice S4x1x16 ![0, 216, 0] · slices_S4x512x16_S4x1x16_0_216_0) : (⟨S4x512x16, .f32⟩ : BufTy).Contents (Elt F) → (⟨S4x1x16, .f32⟩ : BufTy).Contents (Elt F)),
    reshape main_v4329 main_v4330 rfl shapeCasts_S4x1x16_S4x16,
    unary main_v4330 main_v4331 (broadcastInDim S4x1x16 ![0, 2] bcast_S4x16_S4x1x16_0_2 : (⟨S4x16, .f32⟩ : BufTy).Contents (Elt F) → (⟨S4x1x16, .f32⟩ : BufTy).Contents (Elt F)),
    unary main_v4328 main_v4332 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4331 main_v4333 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4332 main_v4333 main_v4334 (mulf : (⟨S4x256x16, .f32⟩ : BufTy).Contents (Elt F) → (⟨S4x256x16, .f32⟩ : BufTy).Contents (Elt F) → (⟨S4x256x16, .f32⟩ : BufTy).Contents (Elt F)),
    binary main_v4325 main_v4334 main_v4335 (addf : (⟨S4x256x16, .f32⟩ : BufTy).Contents (Elt F) → (⟨S4x256x16, .f32⟩ : BufTy).Contents (Elt F) → (⟨S4x256x16, .f32⟩ : BufTy).Contents (Elt F)),
    unary main_arg3 main_v4336 ((extractStridedSlice S4x1x16 ![0, 216, 0] · slices_S4x512x16_S4x1x16_0_216_0) : (⟨S4x512x16, .f32⟩ : BufTy).Contents (Elt F) → (⟨S4x1x16, .f32⟩ : BufTy).Contents (Elt F)),
    reshape main_v4336 main_v4337 rfl shapeCasts_S4x1x16_S4x16,
    unary main_v4337 main_v4338 (broadcastInDim S4x1x16 ![0, 2] bcast_S4x16_S4x1x16_0_2 : (⟨S4x16, .f32⟩ : BufTy).Contents (Elt F) → (⟨S4x1x16, .f32⟩ : BufTy).Contents (Elt F)),
    unary main_v4338 main_v4339 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4335 main_v4339 main_v4340 (mulf : (⟨S4x256x16, .f32⟩ : BufTy).Contents (Elt F) → (⟨S4x256x16, .f32⟩ : BufTy).Contents (Elt F) → (⟨S4x256x16, .f32⟩ : BufTy).Contents (Elt F)),
    nullary main_cst_432 (constant S_ .f32 0x00000000#32),
    binary main_v4340 main_cst_432 main_v4341 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_433 (constantI S_ 32 216#32),
    unary main_c_433 main_v4342 (broadcastInDim S1 ![] bcast_S_S1 : (⟨S_, .i32⟩ : BufTy).Contents (Elt F) → (⟨S1, .i32⟩ : BufTy).Contents (Elt F)),
    ternary main_v4323 main_v4342 main_v4341 main_v4343 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps216_ok : (stepOps216 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step216_val (V : Valuation τ sig (Elt Ideal)) :
    after (stepOps216 (F := Ideal)) V (no_index (Proc.devRef .tc main_v4335)) = stepH 216 (by decide) (V (Proc.devRef .tc main_arg0)) (V (Proc.devRef .tc main_v3)) (V (Proc.devRef .tc main_arg2)) (V (Proc.devRef .tc main_v4315))
    ∧ after (stepOps216 (F := Ideal)) V (no_index (Proc.devRef .tc main_v4343)) = stepY 216 (by decide) (V (Proc.devRef .tc main_arg3)) (stepH 216 (by decide) (V (Proc.devRef .tc main_arg0)) (V (Proc.devRef .tc main_v3)) (V (Proc.devRef .tc main_arg2)) (V (Proc.devRef .tc main_v4315))) (V (Proc.devRef .tc main_v4323)) := by
  simp only [stepOps216]
  after_results_simp
  first | exact ⟨rfl, rfl⟩ | fail "value"
/-- Step 217 of the loop: operations 4781 … 4802 of the program. -/
abbrev stepOps217 : List (HloOp τ sig (Elt F)) :=
  [ unary main_v3 main_v4344 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4335 main_v4344 main_v4345 (mulf : (⟨S4x256x16, .f32⟩ : BufTy).Contents (Elt F) → (⟨S4x256x16, .f32⟩ : BufTy).Contents (Elt F) → (⟨S4x256x16, .f32⟩ : BufTy).Contents (Elt F)),
    unary main_arg0 main_v4346 ((extractStridedSlice S4x1x256 ![0, 217, 0] · slices_S4x512x256_S4x1x256_0_217_0) : (⟨S4x512x256, .f32⟩ : BufTy).Contents (Elt F) → (⟨S4x1x256, .f32⟩ : BufTy).Contents (Elt F)),
    reshape main_v4346 main_v4347 rfl shapeCasts_S4x1x256_S4x256,
    unary main_v4347 main_v4348 (broadcastInDim S4x256x1 ![0, 1] bcast_S4x256_S4x256x1_0_1 : (⟨S4x256, .f32⟩ : BufTy).Contents (Elt F) → (⟨S4x256x1, .f32⟩ : BufTy).Contents (Elt F)),
    unary main_arg2 main_v4349 ((extractStridedSlice S4x1x16 ![0, 217, 0] · slices_S4x512x16_S4x1x16_0_217_0) : (⟨S4x512x16, .f32⟩ : BufTy).Contents (Elt F) → (⟨S4x1x16, .f32⟩ : BufTy).Contents (Elt F)),
    reshape main_v4349 main_v4350 rfl shapeCasts_S4x1x16_S4x16,
    unary main_v4350 main_v4351 (broadcastInDim S4x1x16 ![0, 2] bcast_S4x16_S4x1x16_0_2 : (⟨S4x16, .f32⟩ : BufTy).Contents (Elt F) → (⟨S4x1x16, .f32⟩ : BufTy).Contents (Elt F)),
    unary main_v4348 main_v4352 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4351 main_v4353 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4352 main_v4353 main_v4354 (mulf : (⟨S4x256x16, .f32⟩ : BufTy).Contents (Elt F) → (⟨S4x256x16, .f32⟩ : BufTy).Contents (Elt F) → (⟨S4x256x16, .f32⟩ : BufTy).Contents (Elt F)),
    binary main_v4345 main_v4354 main_v4355 (addf : (⟨S4x256x16, .f32⟩ : BufTy).Contents (Elt F) → (⟨S4x256x16, .f32⟩ : BufTy).Contents (Elt F) → (⟨S4x256x16, .f32⟩ : BufTy).Contents (Elt F)),
    unary main_arg3 main_v4356 ((extractStridedSlice S4x1x16 ![0, 217, 0] · slices_S4x512x16_S4x1x16_0_217_0) : (⟨S4x512x16, .f32⟩ : BufTy).Contents (Elt F) → (⟨S4x1x16, .f32⟩ : BufTy).Contents (Elt F)),
    reshape main_v4356 main_v4357 rfl shapeCasts_S4x1x16_S4x16,
    unary main_v4357 main_v4358 (broadcastInDim S4x1x16 ![0, 2] bcast_S4x16_S4x1x16_0_2 : (⟨S4x16, .f32⟩ : BufTy).Contents (Elt F) → (⟨S4x1x16, .f32⟩ : BufTy).Contents (Elt F)),
    unary main_v4358 main_v4359 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4355 main_v4359 main_v4360 (mulf : (⟨S4x256x16, .f32⟩ : BufTy).Contents (Elt F) → (⟨S4x256x16, .f32⟩ : BufTy).Contents (Elt F) → (⟨S4x256x16, .f32⟩ : BufTy).Contents (Elt F)),
    nullary main_cst_434 (constant S_ .f32 0x00000000#32),
    binary main_v4360 main_cst_434 main_v4361 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_435 (constantI S_ 32 217#32),
    unary main_c_435 main_v4362 (broadcastInDim S1 ![] bcast_S_S1 : (⟨S_, .i32⟩ : BufTy).Contents (Elt F) → (⟨S1, .i32⟩ : BufTy).Contents (Elt F)),
    ternary main_v4343 main_v4362 main_v4361 main_v4363 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps217_ok : (stepOps217 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step217_val (V : Valuation τ sig (Elt Ideal)) :
    after (stepOps217 (F := Ideal)) V (no_index (Proc.devRef .tc main_v4355)) = stepH 217 (by decide) (V (Proc.devRef .tc main_arg0)) (V (Proc.devRef .tc main_v3)) (V (Proc.devRef .tc main_arg2)) (V (Proc.devRef .tc main_v4335))
    ∧ after (stepOps217 (F := Ideal)) V (no_index (Proc.devRef .tc main_v4363)) = stepY 217 (by decide) (V (Proc.devRef .tc main_arg3)) (stepH 217 (by decide) (V (Proc.devRef .tc main_arg0)) (V (Proc.devRef .tc main_v3)) (V (Proc.devRef .tc main_arg2)) (V (Proc.devRef .tc main_v4335))) (V (Proc.devRef .tc main_v4343)) := by
  simp only [stepOps217]
  after_results_simp
  first | exact ⟨rfl, rfl⟩ | fail "value"
/-- Step 218 of the loop: operations 4803 … 4824 of the program. -/
abbrev stepOps218 : List (HloOp τ sig (Elt F)) :=
  [ unary main_v3 main_v4364 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4355 main_v4364 main_v4365 (mulf : (⟨S4x256x16, .f32⟩ : BufTy).Contents (Elt F) → (⟨S4x256x16, .f32⟩ : BufTy).Contents (Elt F) → (⟨S4x256x16, .f32⟩ : BufTy).Contents (Elt F)),
    unary main_arg0 main_v4366 ((extractStridedSlice S4x1x256 ![0, 218, 0] · slices_S4x512x256_S4x1x256_0_218_0) : (⟨S4x512x256, .f32⟩ : BufTy).Contents (Elt F) → (⟨S4x1x256, .f32⟩ : BufTy).Contents (Elt F)),
    reshape main_v4366 main_v4367 rfl shapeCasts_S4x1x256_S4x256,
    unary main_v4367 main_v4368 (broadcastInDim S4x256x1 ![0, 1] bcast_S4x256_S4x256x1_0_1 : (⟨S4x256, .f32⟩ : BufTy).Contents (Elt F) → (⟨S4x256x1, .f32⟩ : BufTy).Contents (Elt F)),
    unary main_arg2 main_v4369 ((extractStridedSlice S4x1x16 ![0, 218, 0] · slices_S4x512x16_S4x1x16_0_218_0) : (⟨S4x512x16, .f32⟩ : BufTy).Contents (Elt F) → (⟨S4x1x16, .f32⟩ : BufTy).Contents (Elt F)),
    reshape main_v4369 main_v4370 rfl shapeCasts_S4x1x16_S4x16,
    unary main_v4370 main_v4371 (broadcastInDim S4x1x16 ![0, 2] bcast_S4x16_S4x1x16_0_2 : (⟨S4x16, .f32⟩ : BufTy).Contents (Elt F) → (⟨S4x1x16, .f32⟩ : BufTy).Contents (Elt F)),
    unary main_v4368 main_v4372 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4371 main_v4373 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4372 main_v4373 main_v4374 (mulf : (⟨S4x256x16, .f32⟩ : BufTy).Contents (Elt F) → (⟨S4x256x16, .f32⟩ : BufTy).Contents (Elt F) → (⟨S4x256x16, .f32⟩ : BufTy).Contents (Elt F)),
    binary main_v4365 main_v4374 main_v4375 (addf : (⟨S4x256x16, .f32⟩ : BufTy).Contents (Elt F) → (⟨S4x256x16, .f32⟩ : BufTy).Contents (Elt F) → (⟨S4x256x16, .f32⟩ : BufTy).Contents (Elt F)),
    unary main_arg3 main_v4376 ((extractStridedSlice S4x1x16 ![0, 218, 0] · slices_S4x512x16_S4x1x16_0_218_0) : (⟨S4x512x16, .f32⟩ : BufTy).Contents (Elt F) → (⟨S4x1x16, .f32⟩ : BufTy).Contents (Elt F)),
    reshape main_v4376 main_v4377 rfl shapeCasts_S4x1x16_S4x16,
    unary main_v4377 main_v4378 (broadcastInDim S4x1x16 ![0, 2] bcast_S4x16_S4x1x16_0_2 : (⟨S4x16, .f32⟩ : BufTy).Contents (Elt F) → (⟨S4x1x16, .f32⟩ : BufTy).Contents (Elt F)),
    unary main_v4378 main_v4379 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4375 main_v4379 main_v4380 (mulf : (⟨S4x256x16, .f32⟩ : BufTy).Contents (Elt F) → (⟨S4x256x16, .f32⟩ : BufTy).Contents (Elt F) → (⟨S4x256x16, .f32⟩ : BufTy).Contents (Elt F)),
    nullary main_cst_436 (constant S_ .f32 0x00000000#32),
    binary main_v4380 main_cst_436 main_v4381 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_437 (constantI S_ 32 218#32),
    unary main_c_437 main_v4382 (broadcastInDim S1 ![] bcast_S_S1 : (⟨S_, .i32⟩ : BufTy).Contents (Elt F) → (⟨S1, .i32⟩ : BufTy).Contents (Elt F)),
    ternary main_v4363 main_v4382 main_v4381 main_v4383 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps218_ok : (stepOps218 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step218_val (V : Valuation τ sig (Elt Ideal)) :
    after (stepOps218 (F := Ideal)) V (no_index (Proc.devRef .tc main_v4375)) = stepH 218 (by decide) (V (Proc.devRef .tc main_arg0)) (V (Proc.devRef .tc main_v3)) (V (Proc.devRef .tc main_arg2)) (V (Proc.devRef .tc main_v4355))
    ∧ after (stepOps218 (F := Ideal)) V (no_index (Proc.devRef .tc main_v4383)) = stepY 218 (by decide) (V (Proc.devRef .tc main_arg3)) (stepH 218 (by decide) (V (Proc.devRef .tc main_arg0)) (V (Proc.devRef .tc main_v3)) (V (Proc.devRef .tc main_arg2)) (V (Proc.devRef .tc main_v4355))) (V (Proc.devRef .tc main_v4363)) := by
  simp only [stepOps218]
  after_results_simp
  first | exact ⟨rfl, rfl⟩ | fail "value"
/-- Step 219 of the loop: operations 4825 … 4846 of the program. -/
abbrev stepOps219 : List (HloOp τ sig (Elt F)) :=
  [ unary main_v3 main_v4384 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4375 main_v4384 main_v4385 (mulf : (⟨S4x256x16, .f32⟩ : BufTy).Contents (Elt F) → (⟨S4x256x16, .f32⟩ : BufTy).Contents (Elt F) → (⟨S4x256x16, .f32⟩ : BufTy).Contents (Elt F)),
    unary main_arg0 main_v4386 ((extractStridedSlice S4x1x256 ![0, 219, 0] · slices_S4x512x256_S4x1x256_0_219_0) : (⟨S4x512x256, .f32⟩ : BufTy).Contents (Elt F) → (⟨S4x1x256, .f32⟩ : BufTy).Contents (Elt F)),
    reshape main_v4386 main_v4387 rfl shapeCasts_S4x1x256_S4x256,
    unary main_v4387 main_v4388 (broadcastInDim S4x256x1 ![0, 1] bcast_S4x256_S4x256x1_0_1 : (⟨S4x256, .f32⟩ : BufTy).Contents (Elt F) → (⟨S4x256x1, .f32⟩ : BufTy).Contents (Elt F)),
    unary main_arg2 main_v4389 ((extractStridedSlice S4x1x16 ![0, 219, 0] · slices_S4x512x16_S4x1x16_0_219_0) : (⟨S4x512x16, .f32⟩ : BufTy).Contents (Elt F) → (⟨S4x1x16, .f32⟩ : BufTy).Contents (Elt F)),
    reshape main_v4389 main_v4390 rfl shapeCasts_S4x1x16_S4x16,
    unary main_v4390 main_v4391 (broadcastInDim S4x1x16 ![0, 2] bcast_S4x16_S4x1x16_0_2 : (⟨S4x16, .f32⟩ : BufTy).Contents (Elt F) → (⟨S4x1x16, .f32⟩ : BufTy).Contents (Elt F)),
    unary main_v4388 main_v4392 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4391 main_v4393 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4392 main_v4393 main_v4394 (mulf : (⟨S4x256x16, .f32⟩ : BufTy).Contents (Elt F) → (⟨S4x256x16, .f32⟩ : BufTy).Contents (Elt F) → (⟨S4x256x16, .f32⟩ : BufTy).Contents (Elt F)),
    binary main_v4385 main_v4394 main_v4395 (addf : (⟨S4x256x16, .f32⟩ : BufTy).Contents (Elt F) → (⟨S4x256x16, .f32⟩ : BufTy).Contents (Elt F) → (⟨S4x256x16, .f32⟩ : BufTy).Contents (Elt F)),
    unary main_arg3 main_v4396 ((extractStridedSlice S4x1x16 ![0, 219, 0] · slices_S4x512x16_S4x1x16_0_219_0) : (⟨S4x512x16, .f32⟩ : BufTy).Contents (Elt F) → (⟨S4x1x16, .f32⟩ : BufTy).Contents (Elt F)),
    reshape main_v4396 main_v4397 rfl shapeCasts_S4x1x16_S4x16,
    unary main_v4397 main_v4398 (broadcastInDim S4x1x16 ![0, 2] bcast_S4x16_S4x1x16_0_2 : (⟨S4x16, .f32⟩ : BufTy).Contents (Elt F) → (⟨S4x1x16, .f32⟩ : BufTy).Contents (Elt F)),
    unary main_v4398 main_v4399 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4395 main_v4399 main_v4400 (mulf : (⟨S4x256x16, .f32⟩ : BufTy).Contents (Elt F) → (⟨S4x256x16, .f32⟩ : BufTy).Contents (Elt F) → (⟨S4x256x16, .f32⟩ : BufTy).Contents (Elt F)),
    nullary main_cst_438 (constant S_ .f32 0x00000000#32),
    binary main_v4400 main_cst_438 main_v4401 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_439 (constantI S_ 32 219#32),
    unary main_c_439 main_v4402 (broadcastInDim S1 ![] bcast_S_S1 : (⟨S_, .i32⟩ : BufTy).Contents (Elt F) → (⟨S1, .i32⟩ : BufTy).Contents (Elt F)),
    ternary main_v4383 main_v4402 main_v4401 main_v4403 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps219_ok : (stepOps219 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step219_val (V : Valuation τ sig (Elt Ideal)) :
    after (stepOps219 (F := Ideal)) V (no_index (Proc.devRef .tc main_v4395)) = stepH 219 (by decide) (V (Proc.devRef .tc main_arg0)) (V (Proc.devRef .tc main_v3)) (V (Proc.devRef .tc main_arg2)) (V (Proc.devRef .tc main_v4375))
    ∧ after (stepOps219 (F := Ideal)) V (no_index (Proc.devRef .tc main_v4403)) = stepY 219 (by decide) (V (Proc.devRef .tc main_arg3)) (stepH 219 (by decide) (V (Proc.devRef .tc main_arg0)) (V (Proc.devRef .tc main_v3)) (V (Proc.devRef .tc main_arg2)) (V (Proc.devRef .tc main_v4375))) (V (Proc.devRef .tc main_v4383)) := by
  simp only [stepOps219]
  after_results_simp
  first | exact ⟨rfl, rfl⟩ | fail "value"
/-- Step 220 of the loop: operations 4847 … 4868 of the program. -/
abbrev stepOps220 : List (HloOp τ sig (Elt F)) :=
  [ unary main_v3 main_v4404 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4395 main_v4404 main_v4405 (mulf : (⟨S4x256x16, .f32⟩ : BufTy).Contents (Elt F) → (⟨S4x256x16, .f32⟩ : BufTy).Contents (Elt F) → (⟨S4x256x16, .f32⟩ : BufTy).Contents (Elt F)),
    unary main_arg0 main_v4406 ((extractStridedSlice S4x1x256 ![0, 220, 0] · slices_S4x512x256_S4x1x256_0_220_0) : (⟨S4x512x256, .f32⟩ : BufTy).Contents (Elt F) → (⟨S4x1x256, .f32⟩ : BufTy).Contents (Elt F)),
    reshape main_v4406 main_v4407 rfl shapeCasts_S4x1x256_S4x256,
    unary main_v4407 main_v4408 (broadcastInDim S4x256x1 ![0, 1] bcast_S4x256_S4x256x1_0_1 : (⟨S4x256, .f32⟩ : BufTy).Contents (Elt F) → (⟨S4x256x1, .f32⟩ : BufTy).Contents (Elt F)),
    unary main_arg2 main_v4409 ((extractStridedSlice S4x1x16 ![0, 220, 0] · slices_S4x512x16_S4x1x16_0_220_0) : (⟨S4x512x16, .f32⟩ : BufTy).Contents (Elt F) → (⟨S4x1x16, .f32⟩ : BufTy).Contents (Elt F)),
    reshape main_v4409 main_v4410 rfl shapeCasts_S4x1x16_S4x16,
    unary main_v4410 main_v4411 (broadcastInDim S4x1x16 ![0, 2] bcast_S4x16_S4x1x16_0_2 : (⟨S4x16, .f32⟩ : BufTy).Contents (Elt F) → (⟨S4x1x16, .f32⟩ : BufTy).Contents (Elt F)),
    unary main_v4408 main_v4412 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4411 main_v4413 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4412 main_v4413 main_v4414 (mulf : (⟨S4x256x16, .f32⟩ : BufTy).Contents (Elt F) → (⟨S4x256x16, .f32⟩ : BufTy).Contents (Elt F) → (⟨S4x256x16, .f32⟩ : BufTy).Contents (Elt F)),
    binary main_v4405 main_v4414 main_v4415 (addf : (⟨S4x256x16, .f32⟩ : BufTy).Contents (Elt F) → (⟨S4x256x16, .f32⟩ : BufTy).Contents (Elt F) → (⟨S4x256x16, .f32⟩ : BufTy).Contents (Elt F)),
    unary main_arg3 main_v4416 ((extractStridedSlice S4x1x16 ![0, 220, 0] · slices_S4x512x16_S4x1x16_0_220_0) : (⟨S4x512x16, .f32⟩ : BufTy).Contents (Elt F) → (⟨S4x1x16, .f32⟩ : BufTy).Contents (Elt F)),
    reshape main_v4416 main_v4417 rfl shapeCasts_S4x1x16_S4x16,
    unary main_v4417 main_v4418 (broadcastInDim S4x1x16 ![0, 2] bcast_S4x16_S4x1x16_0_2 : (⟨S4x16, .f32⟩ : BufTy).Contents (Elt F) → (⟨S4x1x16, .f32⟩ : BufTy).Contents (Elt F)),
    unary main_v4418 main_v4419 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4415 main_v4419 main_v4420 (mulf : (⟨S4x256x16, .f32⟩ : BufTy).Contents (Elt F) → (⟨S4x256x16, .f32⟩ : BufTy).Contents (Elt F) → (⟨S4x256x16, .f32⟩ : BufTy).Contents (Elt F)),
    nullary main_cst_440 (constant S_ .f32 0x00000000#32),
    binary main_v4420 main_cst_440 main_v4421 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_441 (constantI S_ 32 220#32),
    unary main_c_441 main_v4422 (broadcastInDim S1 ![] bcast_S_S1 : (⟨S_, .i32⟩ : BufTy).Contents (Elt F) → (⟨S1, .i32⟩ : BufTy).Contents (Elt F)),
    ternary main_v4403 main_v4422 main_v4421 main_v4423 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps220_ok : (stepOps220 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step220_val (V : Valuation τ sig (Elt Ideal)) :
    after (stepOps220 (F := Ideal)) V (no_index (Proc.devRef .tc main_v4415)) = stepH 220 (by decide) (V (Proc.devRef .tc main_arg0)) (V (Proc.devRef .tc main_v3)) (V (Proc.devRef .tc main_arg2)) (V (Proc.devRef .tc main_v4395))
    ∧ after (stepOps220 (F := Ideal)) V (no_index (Proc.devRef .tc main_v4423)) = stepY 220 (by decide) (V (Proc.devRef .tc main_arg3)) (stepH 220 (by decide) (V (Proc.devRef .tc main_arg0)) (V (Proc.devRef .tc main_v3)) (V (Proc.devRef .tc main_arg2)) (V (Proc.devRef .tc main_v4395))) (V (Proc.devRef .tc main_v4403)) := by
  simp only [stepOps220]
  after_results_simp
  first | exact ⟨rfl, rfl⟩ | fail "value"
/-- Step 221 of the loop: operations 4869 … 4890 of the program. -/
abbrev stepOps221 : List (HloOp τ sig (Elt F)) :=
  [ unary main_v3 main_v4424 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4415 main_v4424 main_v4425 (mulf : (⟨S4x256x16, .f32⟩ : BufTy).Contents (Elt F) → (⟨S4x256x16, .f32⟩ : BufTy).Contents (Elt F) → (⟨S4x256x16, .f32⟩ : BufTy).Contents (Elt F)),
    unary main_arg0 main_v4426 ((extractStridedSlice S4x1x256 ![0, 221, 0] · slices_S4x512x256_S4x1x256_0_221_0) : (⟨S4x512x256, .f32⟩ : BufTy).Contents (Elt F) → (⟨S4x1x256, .f32⟩ : BufTy).Contents (Elt F)),
    reshape main_v4426 main_v4427 rfl shapeCasts_S4x1x256_S4x256,
    unary main_v4427 main_v4428 (broadcastInDim S4x256x1 ![0, 1] bcast_S4x256_S4x256x1_0_1 : (⟨S4x256, .f32⟩ : BufTy).Contents (Elt F) → (⟨S4x256x1, .f32⟩ : BufTy).Contents (Elt F)),
    unary main_arg2 main_v4429 ((extractStridedSlice S4x1x16 ![0, 221, 0] · slices_S4x512x16_S4x1x16_0_221_0) : (⟨S4x512x16, .f32⟩ : BufTy).Contents (Elt F) → (⟨S4x1x16, .f32⟩ : BufTy).Contents (Elt F)),
    reshape main_v4429 main_v4430 rfl shapeCasts_S4x1x16_S4x16,
    unary main_v4430 main_v4431 (broadcastInDim S4x1x16 ![0, 2] bcast_S4x16_S4x1x16_0_2 : (⟨S4x16, .f32⟩ : BufTy).Contents (Elt F) → (⟨S4x1x16, .f32⟩ : BufTy).Contents (Elt F)),
    unary main_v4428 main_v4432 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4431 main_v4433 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4432 main_v4433 main_v4434 (mulf : (⟨S4x256x16, .f32⟩ : BufTy).Contents (Elt F) → (⟨S4x256x16, .f32⟩ : BufTy).Contents (Elt F) → (⟨S4x256x16, .f32⟩ : BufTy).Contents (Elt F)),
    binary main_v4425 main_v4434 main_v4435 (addf : (⟨S4x256x16, .f32⟩ : BufTy).Contents (Elt F) → (⟨S4x256x16, .f32⟩ : BufTy).Contents (Elt F) → (⟨S4x256x16, .f32⟩ : BufTy).Contents (Elt F)),
    unary main_arg3 main_v4436 ((extractStridedSlice S4x1x16 ![0, 221, 0] · slices_S4x512x16_S4x1x16_0_221_0) : (⟨S4x512x16, .f32⟩ : BufTy).Contents (Elt F) → (⟨S4x1x16, .f32⟩ : BufTy).Contents (Elt F)),
    reshape main_v4436 main_v4437 rfl shapeCasts_S4x1x16_S4x16,
    unary main_v4437 main_v4438 (broadcastInDim S4x1x16 ![0, 2] bcast_S4x16_S4x1x16_0_2 : (⟨S4x16, .f32⟩ : BufTy).Contents (Elt F) → (⟨S4x1x16, .f32⟩ : BufTy).Contents (Elt F)),
    unary main_v4438 main_v4439 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4435 main_v4439 main_v4440 (mulf : (⟨S4x256x16, .f32⟩ : BufTy).Contents (Elt F) → (⟨S4x256x16, .f32⟩ : BufTy).Contents (Elt F) → (⟨S4x256x16, .f32⟩ : BufTy).Contents (Elt F)),
    nullary main_cst_442 (constant S_ .f32 0x00000000#32),
    binary main_v4440 main_cst_442 main_v4441 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_443 (constantI S_ 32 221#32),
    unary main_c_443 main_v4442 (broadcastInDim S1 ![] bcast_S_S1 : (⟨S_, .i32⟩ : BufTy).Contents (Elt F) → (⟨S1, .i32⟩ : BufTy).Contents (Elt F)),
    ternary main_v4423 main_v4442 main_v4441 main_v4443 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps221_ok : (stepOps221 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step221_val (V : Valuation τ sig (Elt Ideal)) :
    after (stepOps221 (F := Ideal)) V (no_index (Proc.devRef .tc main_v4435)) = stepH 221 (by decide) (V (Proc.devRef .tc main_arg0)) (V (Proc.devRef .tc main_v3)) (V (Proc.devRef .tc main_arg2)) (V (Proc.devRef .tc main_v4415))
    ∧ after (stepOps221 (F := Ideal)) V (no_index (Proc.devRef .tc main_v4443)) = stepY 221 (by decide) (V (Proc.devRef .tc main_arg3)) (stepH 221 (by decide) (V (Proc.devRef .tc main_arg0)) (V (Proc.devRef .tc main_v3)) (V (Proc.devRef .tc main_arg2)) (V (Proc.devRef .tc main_v4415))) (V (Proc.devRef .tc main_v4423)) := by
  simp only [stepOps221]
  after_results_simp
  first | exact ⟨rfl, rfl⟩ | fail "value"
/-- Step 222 of the loop: operations 4891 … 4912 of the program. -/
abbrev stepOps222 : List (HloOp τ sig (Elt F)) :=
  [ unary main_v3 main_v4444 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4435 main_v4444 main_v4445 (mulf : (⟨S4x256x16, .f32⟩ : BufTy).Contents (Elt F) → (⟨S4x256x16, .f32⟩ : BufTy).Contents (Elt F) → (⟨S4x256x16, .f32⟩ : BufTy).Contents (Elt F)),
    unary main_arg0 main_v4446 ((extractStridedSlice S4x1x256 ![0, 222, 0] · slices_S4x512x256_S4x1x256_0_222_0) : (⟨S4x512x256, .f32⟩ : BufTy).Contents (Elt F) → (⟨S4x1x256, .f32⟩ : BufTy).Contents (Elt F)),
    reshape main_v4446 main_v4447 rfl shapeCasts_S4x1x256_S4x256,
    unary main_v4447 main_v4448 (broadcastInDim S4x256x1 ![0, 1] bcast_S4x256_S4x256x1_0_1 : (⟨S4x256, .f32⟩ : BufTy).Contents (Elt F) → (⟨S4x256x1, .f32⟩ : BufTy).Contents (Elt F)),
    unary main_arg2 main_v4449 ((extractStridedSlice S4x1x16 ![0, 222, 0] · slices_S4x512x16_S4x1x16_0_222_0) : (⟨S4x512x16, .f32⟩ : BufTy).Contents (Elt F) → (⟨S4x1x16, .f32⟩ : BufTy).Contents (Elt F)),
    reshape main_v4449 main_v4450 rfl shapeCasts_S4x1x16_S4x16,
    unary main_v4450 main_v4451 (broadcastInDim S4x1x16 ![0, 2] bcast_S4x16_S4x1x16_0_2 : (⟨S4x16, .f32⟩ : BufTy).Contents (Elt F) → (⟨S4x1x16, .f32⟩ : BufTy).Contents (Elt F)),
    unary main_v4448 main_v4452 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4451 main_v4453 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4452 main_v4453 main_v4454 (mulf : (⟨S4x256x16, .f32⟩ : BufTy).Contents (Elt F) → (⟨S4x256x16, .f32⟩ : BufTy).Contents (Elt F) → (⟨S4x256x16, .f32⟩ : BufTy).Contents (Elt F)),
    binary main_v4445 main_v4454 main_v4455 (addf : (⟨S4x256x16, .f32⟩ : BufTy).Contents (Elt F) → (⟨S4x256x16, .f32⟩ : BufTy).Contents (Elt F) → (⟨S4x256x16, .f32⟩ : BufTy).Contents (Elt F)),
    unary main_arg3 main_v4456 ((extractStridedSlice S4x1x16 ![0, 222, 0] · slices_S4x512x16_S4x1x16_0_222_0) : (⟨S4x512x16, .f32⟩ : BufTy).Contents (Elt F) → (⟨S4x1x16, .f32⟩ : BufTy).Contents (Elt F)),
    reshape main_v4456 main_v4457 rfl shapeCasts_S4x1x16_S4x16,
    unary main_v4457 main_v4458 (broadcastInDim S4x1x16 ![0, 2] bcast_S4x16_S4x1x16_0_2 : (⟨S4x16, .f32⟩ : BufTy).Contents (Elt F) → (⟨S4x1x16, .f32⟩ : BufTy).Contents (Elt F)),
    unary main_v4458 main_v4459 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4455 main_v4459 main_v4460 (mulf : (⟨S4x256x16, .f32⟩ : BufTy).Contents (Elt F) → (⟨S4x256x16, .f32⟩ : BufTy).Contents (Elt F) → (⟨S4x256x16, .f32⟩ : BufTy).Contents (Elt F)),
    nullary main_cst_444 (constant S_ .f32 0x00000000#32),
    binary main_v4460 main_cst_444 main_v4461 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_445 (constantI S_ 32 222#32),
    unary main_c_445 main_v4462 (broadcastInDim S1 ![] bcast_S_S1 : (⟨S_, .i32⟩ : BufTy).Contents (Elt F) → (⟨S1, .i32⟩ : BufTy).Contents (Elt F)),
    ternary main_v4443 main_v4462 main_v4461 main_v4463 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps222_ok : (stepOps222 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step222_val (V : Valuation τ sig (Elt Ideal)) :
    after (stepOps222 (F := Ideal)) V (no_index (Proc.devRef .tc main_v4455)) = stepH 222 (by decide) (V (Proc.devRef .tc main_arg0)) (V (Proc.devRef .tc main_v3)) (V (Proc.devRef .tc main_arg2)) (V (Proc.devRef .tc main_v4435))
    ∧ after (stepOps222 (F := Ideal)) V (no_index (Proc.devRef .tc main_v4463)) = stepY 222 (by decide) (V (Proc.devRef .tc main_arg3)) (stepH 222 (by decide) (V (Proc.devRef .tc main_arg0)) (V (Proc.devRef .tc main_v3)) (V (Proc.devRef .tc main_arg2)) (V (Proc.devRef .tc main_v4435))) (V (Proc.devRef .tc main_v4443)) := by
  simp only [stepOps222]
  after_results_simp
  first | exact ⟨rfl, rfl⟩ | fail "value"
/-- Step 223 of the loop: operations 4913 … 4934 of the program. -/
abbrev stepOps223 : List (HloOp τ sig (Elt F)) :=
  [ unary main_v3 main_v4464 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4455 main_v4464 main_v4465 (mulf : (⟨S4x256x16, .f32⟩ : BufTy).Contents (Elt F) → (⟨S4x256x16, .f32⟩ : BufTy).Contents (Elt F) → (⟨S4x256x16, .f32⟩ : BufTy).Contents (Elt F)),
    unary main_arg0 main_v4466 ((extractStridedSlice S4x1x256 ![0, 223, 0] · slices_S4x512x256_S4x1x256_0_223_0) : (⟨S4x512x256, .f32⟩ : BufTy).Contents (Elt F) → (⟨S4x1x256, .f32⟩ : BufTy).Contents (Elt F)),
    reshape main_v4466 main_v4467 rfl shapeCasts_S4x1x256_S4x256,
    unary main_v4467 main_v4468 (broadcastInDim S4x256x1 ![0, 1] bcast_S4x256_S4x256x1_0_1 : (⟨S4x256, .f32⟩ : BufTy).Contents (Elt F) → (⟨S4x256x1, .f32⟩ : BufTy).Contents (Elt F)),
    unary main_arg2 main_v4469 ((extractStridedSlice S4x1x16 ![0, 223, 0] · slices_S4x512x16_S4x1x16_0_223_0) : (⟨S4x512x16, .f32⟩ : BufTy).Contents (Elt F) → (⟨S4x1x16, .f32⟩ : BufTy).Contents (Elt F)),
    reshape main_v4469 main_v4470 rfl shapeCasts_S4x1x16_S4x16,
    unary main_v4470 main_v4471 (broadcastInDim S4x1x16 ![0, 2] bcast_S4x16_S4x1x16_0_2 : (⟨S4x16, .f32⟩ : BufTy).Contents (Elt F) → (⟨S4x1x16, .f32⟩ : BufTy).Contents (Elt F)),
    unary main_v4468 main_v4472 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4471 main_v4473 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4472 main_v4473 main_v4474 (mulf : (⟨S4x256x16, .f32⟩ : BufTy).Contents (Elt F) → (⟨S4x256x16, .f32⟩ : BufTy).Contents (Elt F) → (⟨S4x256x16, .f32⟩ : BufTy).Contents (Elt F)),
    binary main_v4465 main_v4474 main_v4475 (addf : (⟨S4x256x16, .f32⟩ : BufTy).Contents (Elt F) → (⟨S4x256x16, .f32⟩ : BufTy).Contents (Elt F) → (⟨S4x256x16, .f32⟩ : BufTy).Contents (Elt F)),
    unary main_arg3 main_v4476 ((extractStridedSlice S4x1x16 ![0, 223, 0] · slices_S4x512x16_S4x1x16_0_223_0) : (⟨S4x512x16, .f32⟩ : BufTy).Contents (Elt F) → (⟨S4x1x16, .f32⟩ : BufTy).Contents (Elt F)),
    reshape main_v4476 main_v4477 rfl shapeCasts_S4x1x16_S4x16,
    unary main_v4477 main_v4478 (broadcastInDim S4x1x16 ![0, 2] bcast_S4x16_S4x1x16_0_2 : (⟨S4x16, .f32⟩ : BufTy).Contents (Elt F) → (⟨S4x1x16, .f32⟩ : BufTy).Contents (Elt F)),
    unary main_v4478 main_v4479 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4475 main_v4479 main_v4480 (mulf : (⟨S4x256x16, .f32⟩ : BufTy).Contents (Elt F) → (⟨S4x256x16, .f32⟩ : BufTy).Contents (Elt F) → (⟨S4x256x16, .f32⟩ : BufTy).Contents (Elt F)),
    nullary main_cst_446 (constant S_ .f32 0x00000000#32),
    binary main_v4480 main_cst_446 main_v4481 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_447 (constantI S_ 32 223#32),
    unary main_c_447 main_v4482 (broadcastInDim S1 ![] bcast_S_S1 : (⟨S_, .i32⟩ : BufTy).Contents (Elt F) → (⟨S1, .i32⟩ : BufTy).Contents (Elt F)),
    ternary main_v4463 main_v4482 main_v4481 main_v4483 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps223_ok : (stepOps223 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step223_val (V : Valuation τ sig (Elt Ideal)) :
    after (stepOps223 (F := Ideal)) V (no_index (Proc.devRef .tc main_v4475)) = stepH 223 (by decide) (V (Proc.devRef .tc main_arg0)) (V (Proc.devRef .tc main_v3)) (V (Proc.devRef .tc main_arg2)) (V (Proc.devRef .tc main_v4455))
    ∧ after (stepOps223 (F := Ideal)) V (no_index (Proc.devRef .tc main_v4483)) = stepY 223 (by decide) (V (Proc.devRef .tc main_arg3)) (stepH 223 (by decide) (V (Proc.devRef .tc main_arg0)) (V (Proc.devRef .tc main_v3)) (V (Proc.devRef .tc main_arg2)) (V (Proc.devRef .tc main_v4455))) (V (Proc.devRef .tc main_v4463)) := by
  simp only [stepOps223]
  after_results_simp
  first | exact ⟨rfl, rfl⟩ | fail "value"

end Cert.ReferenceIdeal.RefRun

end
-- ==== Proof.RefTableStep14.lean ====
/-
  Steps 224 … 239 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 224 of the loop: operations 4935 … 4956 of the program. -/
abbrev stepOps224 : List (HloOp τ sig (Elt F)) :=
  [ unary main_v3 main_v4484 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4475 main_v4484 main_v4485 (mulf : (⟨S4x256x16, .f32⟩ : BufTy).Contents (Elt F) → (⟨S4x256x16, .f32⟩ : BufTy).Contents (Elt F) → (⟨S4x256x16, .f32⟩ : BufTy).Contents (Elt F)),
    unary main_arg0 main_v4486 ((extractStridedSlice S4x1x256 ![0, 224, 0] · slices_S4x512x256_S4x1x256_0_224_0) : (⟨S4x512x256, .f32⟩ : BufTy).Contents (Elt F) → (⟨S4x1x256, .f32⟩ : BufTy).Contents (Elt F)),
    reshape main_v4486 main_v4487 rfl shapeCasts_S4x1x256_S4x256,
    unary main_v4487 main_v4488 (broadcastInDim S4x256x1 ![0, 1] bcast_S4x256_S4x256x1_0_1 : (⟨S4x256, .f32⟩ : BufTy).Contents (Elt F) → (⟨S4x256x1, .f32⟩ : BufTy).Contents (Elt F)),
    unary main_arg2 main_v4489 ((extractStridedSlice S4x1x16 ![0, 224, 0] · slices_S4x512x16_S4x1x16_0_224_0) : (⟨S4x512x16, .f32⟩ : BufTy).Contents (Elt F) → (⟨S4x1x16, .f32⟩ : BufTy).Contents (Elt F)),
    reshape main_v4489 main_v4490 rfl shapeCasts_S4x1x16_S4x16,
    unary main_v4490 main_v4491 (broadcastInDim S4x1x16 ![0, 2] bcast_S4x16_S4x1x16_0_2 : (⟨S4x16, .f32⟩ : BufTy).Contents (Elt F) → (⟨S4x1x16, .f32⟩ : BufTy).Contents (Elt F)),
    unary main_v4488 main_v4492 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4491 main_v4493 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4492 main_v4493 main_v4494 (mulf : (⟨S4x256x16, .f32⟩ : BufTy).Contents (Elt F) → (⟨S4x256x16, .f32⟩ : BufTy).Contents (Elt F) → (⟨S4x256x16, .f32⟩ : BufTy).Contents (Elt F)),
    binary main_v4485 main_v4494 main_v4495 (addf : (⟨S4x256x16, .f32⟩ : BufTy).Contents (Elt F) → (⟨S4x256x16, .f32⟩ : BufTy).Contents (Elt F) → (⟨S4x256x16, .f32⟩ : BufTy).Contents (Elt F)),
    unary main_arg3 main_v4496 ((extractStridedSlice S4x1x16 ![0, 224, 0] · slices_S4x512x16_S4x1x16_0_224_0) : (⟨S4x512x16, .f32⟩ : BufTy).Contents (Elt F) → (⟨S4x1x16, .f32⟩ : BufTy).Contents (Elt F)),
    reshape main_v4496 main_v4497 rfl shapeCasts_S4x1x16_S4x16,
    unary main_v4497 main_v4498 (broadcastInDim S4x1x16 ![0, 2] bcast_S4x16_S4x1x16_0_2 : (⟨S4x16, .f32⟩ : BufTy).Contents (Elt F) → (⟨S4x1x16, .f32⟩ : BufTy).Contents (Elt F)),
    unary main_v4498 main_v4499 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4495 main_v4499 main_v4500 (mulf : (⟨S4x256x16, .f32⟩ : BufTy).Contents (Elt F) → (⟨S4x256x16, .f32⟩ : BufTy).Contents (Elt F) → (⟨S4x256x16, .f32⟩ : BufTy).Contents (Elt F)),
    nullary main_cst_448 (constant S_ .f32 0x00000000#32),
    binary main_v4500 main_cst_448 main_v4501 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_449 (constantI S_ 32 224#32),
    unary main_c_449 main_v4502 (broadcastInDim S1 ![] bcast_S_S1 : (⟨S_, .i32⟩ : BufTy).Contents (Elt F) → (⟨S1, .i32⟩ : BufTy).Contents (Elt F)),
    ternary main_v4483 main_v4502 main_v4501 main_v4503 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps224_ok : (stepOps224 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step224_val (V : Valuation τ sig (Elt Ideal)) :
    after (stepOps224 (F := Ideal)) V (no_index (Proc.devRef .tc main_v4495)) = stepH 224 (by decide) (V (Proc.devRef .tc main_arg0)) (V (Proc.devRef .tc main_v3)) (V (Proc.devRef .tc main_arg2)) (V (Proc.devRef .tc main_v4475))
    ∧ after (stepOps224 (F := Ideal)) V (no_index (Proc.devRef .tc main_v4503)) = stepY 224 (by decide) (V (Proc.devRef .tc main_arg3)) (stepH 224 (by decide) (V (Proc.devRef .tc main_arg0)) (V (Proc.devRef .tc main_v3)) (V (Proc.devRef .tc main_arg2)) (V (Proc.devRef .tc main_v4475))) (V (Proc.devRef .tc main_v4483)) := by
  simp only [stepOps224]
  after_results_simp
  first | exact ⟨rfl, rfl⟩ | fail "value"
/-- Step 225 of the loop: operations 4957 … 4978 of the program. -/
abbrev stepOps225 : List (HloOp τ sig (Elt F)) :=
  [ unary main_v3 main_v4504 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4495 main_v4504 main_v4505 (mulf : (⟨S4x256x16, .f32⟩ : BufTy).Contents (Elt F) → (⟨S4x256x16, .f32⟩ : BufTy).Contents (Elt F) → (⟨S4x256x16, .f32⟩ : BufTy).Contents (Elt F)),
    unary main_arg0 main_v4506 ((extractStridedSlice S4x1x256 ![0, 225, 0] · slices_S4x512x256_S4x1x256_0_225_0) : (⟨S4x512x256, .f32⟩ : BufTy).Contents (Elt F) → (⟨S4x1x256, .f32⟩ : BufTy).Contents (Elt F)),
    reshape main_v4506 main_v4507 rfl shapeCasts_S4x1x256_S4x256,
    unary main_v4507 main_v4508 (broadcastInDim S4x256x1 ![0, 1] bcast_S4x256_S4x256x1_0_1 : (⟨S4x256, .f32⟩ : BufTy).Contents (Elt F) → (⟨S4x256x1, .f32⟩ : BufTy).Contents (Elt F)),
    unary main_arg2 main_v4509 ((extractStridedSlice S4x1x16 ![0, 225, 0] · slices_S4x512x16_S4x1x16_0_225_0) : (⟨S4x512x16, .f32⟩ : BufTy).Contents (Elt F) → (⟨S4x1x16, .f32⟩ : BufTy).Contents (Elt F)),
    reshape main_v4509 main_v4510 rfl shapeCasts_S4x1x16_S4x16,
    unary main_v4510 main_v4511 (broadcastInDim S4x1x16 ![0, 2] bcast_S4x16_S4x1x16_0_2 : (⟨S4x16, .f32⟩ : BufTy).Contents (Elt F) → (⟨S4x1x16, .f32⟩ : BufTy).Contents (Elt F)),
    unary main_v4508 main_v4512 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4511 main_v4513 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4512 main_v4513 main_v4514 (mulf : (⟨S4x256x16, .f32⟩ : BufTy).Contents (Elt F) → (⟨S4x256x16, .f32⟩ : BufTy).Contents (Elt F) → (⟨S4x256x16, .f32⟩ : BufTy).Contents (Elt F)),
    binary main_v4505 main_v4514 main_v4515 (addf : (⟨S4x256x16, .f32⟩ : BufTy).Contents (Elt F) → (⟨S4x256x16, .f32⟩ : BufTy).Contents (Elt F) → (⟨S4x256x16, .f32⟩ : BufTy).Contents (Elt F)),
    unary main_arg3 main_v4516 ((extractStridedSlice S4x1x16 ![0, 225, 0] · slices_S4x512x16_S4x1x16_0_225_0) : (⟨S4x512x16, .f32⟩ : BufTy).Contents (Elt F) → (⟨S4x1x16, .f32⟩ : BufTy).Contents (Elt F)),
    reshape main_v4516 main_v4517 rfl shapeCasts_S4x1x16_S4x16,
    unary main_v4517 main_v4518 (broadcastInDim S4x1x16 ![0, 2] bcast_S4x16_S4x1x16_0_2 : (⟨S4x16, .f32⟩ : BufTy).Contents (Elt F) → (⟨S4x1x16, .f32⟩ : BufTy).Contents (Elt F)),
    unary main_v4518 main_v4519 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4515 main_v4519 main_v4520 (mulf : (⟨S4x256x16, .f32⟩ : BufTy).Contents (Elt F) → (⟨S4x256x16, .f32⟩ : BufTy).Contents (Elt F) → (⟨S4x256x16, .f32⟩ : BufTy).Contents (Elt F)),
    nullary main_cst_450 (constant S_ .f32 0x00000000#32),
    binary main_v4520 main_cst_450 main_v4521 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_451 (constantI S_ 32 225#32),
    unary main_c_451 main_v4522 (broadcastInDim S1 ![] bcast_S_S1 : (⟨S_, .i32⟩ : BufTy).Contents (Elt F) → (⟨S1, .i32⟩ : BufTy).Contents (Elt F)),
    ternary main_v4503 main_v4522 main_v4521 main_v4523 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps225_ok : (stepOps225 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step225_val (V : Valuation τ sig (Elt Ideal)) :
    after (stepOps225 (F := Ideal)) V (no_index (Proc.devRef .tc main_v4515)) = stepH 225 (by decide) (V (Proc.devRef .tc main_arg0)) (V (Proc.devRef .tc main_v3)) (V (Proc.devRef .tc main_arg2)) (V (Proc.devRef .tc main_v4495))
    ∧ after (stepOps225 (F := Ideal)) V (no_index (Proc.devRef .tc main_v4523)) = stepY 225 (by decide) (V (Proc.devRef .tc main_arg3)) (stepH 225 (by decide) (V (Proc.devRef .tc main_arg0)) (V (Proc.devRef .tc main_v3)) (V (Proc.devRef .tc main_arg2)) (V (Proc.devRef .tc main_v4495))) (V (Proc.devRef .tc main_v4503)) := by
  simp only [stepOps225]
  after_results_simp
  first | exact ⟨rfl, rfl⟩ | fail "value"
/-- Step 226 of the loop: operations 4979 … 5000 of the program. -/
abbrev stepOps226 : List (HloOp τ sig (Elt F)) :=
  [ unary main_v3 main_v4524 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4515 main_v4524 main_v4525 (mulf : (⟨S4x256x16, .f32⟩ : BufTy).Contents (Elt F) → (⟨S4x256x16, .f32⟩ : BufTy).Contents (Elt F) → (⟨S4x256x16, .f32⟩ : BufTy).Contents (Elt F)),
    unary main_arg0 main_v4526 ((extractStridedSlice S4x1x256 ![0, 226, 0] · slices_S4x512x256_S4x1x256_0_226_0) : (⟨S4x512x256, .f32⟩ : BufTy).Contents (Elt F) → (⟨S4x1x256, .f32⟩ : BufTy).Contents (Elt F)),
    reshape main_v4526 main_v4527 rfl shapeCasts_S4x1x256_S4x256,
    unary main_v4527 main_v4528 (broadcastInDim S4x256x1 ![0, 1] bcast_S4x256_S4x256x1_0_1 : (⟨S4x256, .f32⟩ : BufTy).Contents (Elt F) → (⟨S4x256x1, .f32⟩ : BufTy).Contents (Elt F)),
    unary main_arg2 main_v4529 ((extractStridedSlice S4x1x16 ![0, 226, 0] · slices_S4x512x16_S4x1x16_0_226_0) : (⟨S4x512x16, .f32⟩ : BufTy).Contents (Elt F) → (⟨S4x1x16, .f32⟩ : BufTy).Contents (Elt F)),
    reshape main_v4529 main_v4530 rfl shapeCasts_S4x1x16_S4x16,
    unary main_v4530 main_v4531 (broadcastInDim S4x1x16 ![0, 2] bcast_S4x16_S4x1x16_0_2 : (⟨S4x16, .f32⟩ : BufTy).Contents (Elt F) → (⟨S4x1x16, .f32⟩ : BufTy).Contents (Elt F)),
    unary main_v4528 main_v4532 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4531 main_v4533 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4532 main_v4533 main_v4534 (mulf : (⟨S4x256x16, .f32⟩ : BufTy).Contents (Elt F) → (⟨S4x256x16, .f32⟩ : BufTy).Contents (Elt F) → (⟨S4x256x16, .f32⟩ : BufTy).Contents (Elt F)),
    binary main_v4525 main_v4534 main_v4535 (addf : (⟨S4x256x16, .f32⟩ : BufTy).Contents (Elt F) → (⟨S4x256x16, .f32⟩ : BufTy).Contents (Elt F) → (⟨S4x256x16, .f32⟩ : BufTy).Contents (Elt F)),
    unary main_arg3 main_v4536 ((extractStridedSlice S4x1x16 ![0, 226, 0] · slices_S4x512x16_S4x1x16_0_226_0) : (⟨S4x512x16, .f32⟩ : BufTy).Contents (Elt F) → (⟨S4x1x16, .f32⟩ : BufTy).Contents (Elt F)),
    reshape main_v4536 main_v4537 rfl shapeCasts_S4x1x16_S4x16,
    unary main_v4537 main_v4538 (broadcastInDim S4x1x16 ![0, 2] bcast_S4x16_S4x1x16_0_2 : (⟨S4x16, .f32⟩ : BufTy).Contents (Elt F) → (⟨S4x1x16, .f32⟩ : BufTy).Contents (Elt F)),
    unary main_v4538 main_v4539 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4535 main_v4539 main_v4540 (mulf : (⟨S4x256x16, .f32⟩ : BufTy).Contents (Elt F) → (⟨S4x256x16, .f32⟩ : BufTy).Contents (Elt F) → (⟨S4x256x16, .f32⟩ : BufTy).Contents (Elt F)),
    nullary main_cst_452 (constant S_ .f32 0x00000000#32),
    binary main_v4540 main_cst_452 main_v4541 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_453 (constantI S_ 32 226#32),
    unary main_c_453 main_v4542 (broadcastInDim S1 ![] bcast_S_S1 : (⟨S_, .i32⟩ : BufTy).Contents (Elt F) → (⟨S1, .i32⟩ : BufTy).Contents (Elt F)),
    ternary main_v4523 main_v4542 main_v4541 main_v4543 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps226_ok : (stepOps226 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step226_val (V : Valuation τ sig (Elt Ideal)) :
    after (stepOps226 (F := Ideal)) V (no_index (Proc.devRef .tc main_v4535)) = stepH 226 (by decide) (V (Proc.devRef .tc main_arg0)) (V (Proc.devRef .tc main_v3)) (V (Proc.devRef .tc main_arg2)) (V (Proc.devRef .tc main_v4515))
    ∧ after (stepOps226 (F := Ideal)) V (no_index (Proc.devRef .tc main_v4543)) = stepY 226 (by decide) (V (Proc.devRef .tc main_arg3)) (stepH 226 (by decide) (V (Proc.devRef .tc main_arg0)) (V (Proc.devRef .tc main_v3)) (V (Proc.devRef .tc main_arg2)) (V (Proc.devRef .tc main_v4515))) (V (Proc.devRef .tc main_v4523)) := by
  simp only [stepOps226]
  after_results_simp
  first | exact ⟨rfl, rfl⟩ | fail "value"
/-- Step 227 of the loop: operations 5001 … 5022 of the program. -/
abbrev stepOps227 : List (HloOp τ sig (Elt F)) :=
  [ unary main_v3 main_v4544 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4535 main_v4544 main_v4545 (mulf : (⟨S4x256x16, .f32⟩ : BufTy).Contents (Elt F) → (⟨S4x256x16, .f32⟩ : BufTy).Contents (Elt F) → (⟨S4x256x16, .f32⟩ : BufTy).Contents (Elt F)),
    unary main_arg0 main_v4546 ((extractStridedSlice S4x1x256 ![0, 227, 0] · slices_S4x512x256_S4x1x256_0_227_0) : (⟨S4x512x256, .f32⟩ : BufTy).Contents (Elt F) → (⟨S4x1x256, .f32⟩ : BufTy).Contents (Elt F)),
    reshape main_v4546 main_v4547 rfl shapeCasts_S4x1x256_S4x256,
    unary main_v4547 main_v4548 (broadcastInDim S4x256x1 ![0, 1] bcast_S4x256_S4x256x1_0_1 : (⟨S4x256, .f32⟩ : BufTy).Contents (Elt F) → (⟨S4x256x1, .f32⟩ : BufTy).Contents (Elt F)),
    unary main_arg2 main_v4549 ((extractStridedSlice S4x1x16 ![0, 227, 0] · slices_S4x512x16_S4x1x16_0_227_0) : (⟨S4x512x16, .f32⟩ : BufTy).Contents (Elt F) → (⟨S4x1x16, .f32⟩ : BufTy).Contents (Elt F)),
    reshape main_v4549 main_v4550 rfl shapeCasts_S4x1x16_S4x16,
    unary main_v4550 main_v4551 (broadcastInDim S4x1x16 ![0, 2] bcast_S4x16_S4x1x16_0_2 : (⟨S4x16, .f32⟩ : BufTy).Contents (Elt F) → (⟨S4x1x16, .f32⟩ : BufTy).Contents (Elt F)),
    unary main_v4548 main_v4552 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4551 main_v4553 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4552 main_v4553 main_v4554 (mulf : (⟨S4x256x16, .f32⟩ : BufTy).Contents (Elt F) → (⟨S4x256x16, .f32⟩ : BufTy).Contents (Elt F) → (⟨S4x256x16, .f32⟩ : BufTy).Contents (Elt F)),
    binary main_v4545 main_v4554 main_v4555 (addf : (⟨S4x256x16, .f32⟩ : BufTy).Contents (Elt F) → (⟨S4x256x16, .f32⟩ : BufTy).Contents (Elt F) → (⟨S4x256x16, .f32⟩ : BufTy).Contents (Elt F)),
    unary main_arg3 main_v4556 ((extractStridedSlice S4x1x16 ![0, 227, 0] · slices_S4x512x16_S4x1x16_0_227_0) : (⟨S4x512x16, .f32⟩ : BufTy).Contents (Elt F) → (⟨S4x1x16, .f32⟩ : BufTy).Contents (Elt F)),
    reshape main_v4556 main_v4557 rfl shapeCasts_S4x1x16_S4x16,
    unary main_v4557 main_v4558 (broadcastInDim S4x1x16 ![0, 2] bcast_S4x16_S4x1x16_0_2 : (⟨S4x16, .f32⟩ : BufTy).Contents (Elt F) → (⟨S4x1x16, .f32⟩ : BufTy).Contents (Elt F)),
    unary main_v4558 main_v4559 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4555 main_v4559 main_v4560 (mulf : (⟨S4x256x16, .f32⟩ : BufTy).Contents (Elt F) → (⟨S4x256x16, .f32⟩ : BufTy).Contents (Elt F) → (⟨S4x256x16, .f32⟩ : BufTy).Contents (Elt F)),
    nullary main_cst_454 (constant S_ .f32 0x00000000#32),
    binary main_v4560 main_cst_454 main_v4561 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_455 (constantI S_ 32 227#32),
    unary main_c_455 main_v4562 (broadcastInDim S1 ![] bcast_S_S1 : (⟨S_, .i32⟩ : BufTy).Contents (Elt F) → (⟨S1, .i32⟩ : BufTy).Contents (Elt F)),
    ternary main_v4543 main_v4562 main_v4561 main_v4563 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps227_ok : (stepOps227 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step227_val (V : Valuation τ sig (Elt Ideal)) :
    after (stepOps227 (F := Ideal)) V (no_index (Proc.devRef .tc main_v4555)) = stepH 227 (by decide) (V (Proc.devRef .tc main_arg0)) (V (Proc.devRef .tc main_v3)) (V (Proc.devRef .tc main_arg2)) (V (Proc.devRef .tc main_v4535))
    ∧ after (stepOps227 (F := Ideal)) V (no_index (Proc.devRef .tc main_v4563)) = stepY 227 (by decide) (V (Proc.devRef .tc main_arg3)) (stepH 227 (by decide) (V (Proc.devRef .tc main_arg0)) (V (Proc.devRef .tc main_v3)) (V (Proc.devRef .tc main_arg2)) (V (Proc.devRef .tc main_v4535))) (V (Proc.devRef .tc main_v4543)) := by
  simp only [stepOps227]
  after_results_simp
  first | exact ⟨rfl, rfl⟩ | fail "value"
/-- Step 228 of the loop: operations 5023 … 5044 of the program. -/
abbrev stepOps228 : List (HloOp τ sig (Elt F)) :=
  [ unary main_v3 main_v4564 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4555 main_v4564 main_v4565 (mulf : (⟨S4x256x16, .f32⟩ : BufTy).Contents (Elt F) → (⟨S4x256x16, .f32⟩ : BufTy).Contents (Elt F) → (⟨S4x256x16, .f32⟩ : BufTy).Contents (Elt F)),
    unary main_arg0 main_v4566 ((extractStridedSlice S4x1x256 ![0, 228, 0] · slices_S4x512x256_S4x1x256_0_228_0) : (⟨S4x512x256, .f32⟩ : BufTy).Contents (Elt F) → (⟨S4x1x256, .f32⟩ : BufTy).Contents (Elt F)),
    reshape main_v4566 main_v4567 rfl shapeCasts_S4x1x256_S4x256,
    unary main_v4567 main_v4568 (broadcastInDim S4x256x1 ![0, 1] bcast_S4x256_S4x256x1_0_1 : (⟨S4x256, .f32⟩ : BufTy).Contents (Elt F) → (⟨S4x256x1, .f32⟩ : BufTy).Contents (Elt F)),
    unary main_arg2 main_v4569 ((extractStridedSlice S4x1x16 ![0, 228, 0] · slices_S4x512x16_S4x1x16_0_228_0) : (⟨S4x512x16, .f32⟩ : BufTy).Contents (Elt F) → (⟨S4x1x16, .f32⟩ : BufTy).Contents (Elt F)),
    reshape main_v4569 main_v4570 rfl shapeCasts_S4x1x16_S4x16,
    unary main_v4570 main_v4571 (broadcastInDim S4x1x16 ![0, 2] bcast_S4x16_S4x1x16_0_2 : (⟨S4x16, .f32⟩ : BufTy).Contents (Elt F) → (⟨S4x1x16, .f32⟩ : BufTy).Contents (Elt F)),
    unary main_v4568 main_v4572 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4571 main_v4573 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4572 main_v4573 main_v4574 (mulf : (⟨S4x256x16, .f32⟩ : BufTy).Contents (Elt F) → (⟨S4x256x16, .f32⟩ : BufTy).Contents (Elt F) → (⟨S4x256x16, .f32⟩ : BufTy).Contents (Elt F)),
    binary main_v4565 main_v4574 main_v4575 (addf : (⟨S4x256x16, .f32⟩ : BufTy).Contents (Elt F) → (⟨S4x256x16, .f32⟩ : BufTy).Contents (Elt F) → (⟨S4x256x16, .f32⟩ : BufTy).Contents (Elt F)),
    unary main_arg3 main_v4576 ((extractStridedSlice S4x1x16 ![0, 228, 0] · slices_S4x512x16_S4x1x16_0_228_0) : (⟨S4x512x16, .f32⟩ : BufTy).Contents (Elt F) → (⟨S4x1x16, .f32⟩ : BufTy).Contents (Elt F)),
    reshape main_v4576 main_v4577 rfl shapeCasts_S4x1x16_S4x16,
    unary main_v4577 main_v4578 (broadcastInDim S4x1x16 ![0, 2] bcast_S4x16_S4x1x16_0_2 : (⟨S4x16, .f32⟩ : BufTy).Contents (Elt F) → (⟨S4x1x16, .f32⟩ : BufTy).Contents (Elt F)),
    unary main_v4578 main_v4579 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4575 main_v4579 main_v4580 (mulf : (⟨S4x256x16, .f32⟩ : BufTy).Contents (Elt F) → (⟨S4x256x16, .f32⟩ : BufTy).Contents (Elt F) → (⟨S4x256x16, .f32⟩ : BufTy).Contents (Elt F)),
    nullary main_cst_456 (constant S_ .f32 0x00000000#32),
    binary main_v4580 main_cst_456 main_v4581 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_457 (constantI S_ 32 228#32),
    unary main_c_457 main_v4582 (broadcastInDim S1 ![] bcast_S_S1 : (⟨S_, .i32⟩ : BufTy).Contents (Elt F) → (⟨S1, .i32⟩ : BufTy).Contents (Elt F)),
    ternary main_v4563 main_v4582 main_v4581 main_v4583 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps228_ok : (stepOps228 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step228_val (V : Valuation τ sig (Elt Ideal)) :
    after (stepOps228 (F := Ideal)) V (no_index (Proc.devRef .tc main_v4575)) = stepH 228 (by decide) (V (Proc.devRef .tc main_arg0)) (V (Proc.devRef .tc main_v3)) (V (Proc.devRef .tc main_arg2)) (V (Proc.devRef .tc main_v4555))
    ∧ after (stepOps228 (F := Ideal)) V (no_index (Proc.devRef .tc main_v4583)) = stepY 228 (by decide) (V (Proc.devRef .tc main_arg3)) (stepH 228 (by decide) (V (Proc.devRef .tc main_arg0)) (V (Proc.devRef .tc main_v3)) (V (Proc.devRef .tc main_arg2)) (V (Proc.devRef .tc main_v4555))) (V (Proc.devRef .tc main_v4563)) := by
  simp only [stepOps228]
  after_results_simp
  first | exact ⟨rfl, rfl⟩ | fail "value"
/-- Step 229 of the loop: operations 5045 … 5066 of the program. -/
abbrev stepOps229 : List (HloOp τ sig (Elt F)) :=
  [ unary main_v3 main_v4584 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4575 main_v4584 main_v4585 (mulf : (⟨S4x256x16, .f32⟩ : BufTy).Contents (Elt F) → (⟨S4x256x16, .f32⟩ : BufTy).Contents (Elt F) → (⟨S4x256x16, .f32⟩ : BufTy).Contents (Elt F)),
    unary main_arg0 main_v4586 ((extractStridedSlice S4x1x256 ![0, 229, 0] · slices_S4x512x256_S4x1x256_0_229_0) : (⟨S4x512x256, .f32⟩ : BufTy).Contents (Elt F) → (⟨S4x1x256, .f32⟩ : BufTy).Contents (Elt F)),
    reshape main_v4586 main_v4587 rfl shapeCasts_S4x1x256_S4x256,
    unary main_v4587 main_v4588 (broadcastInDim S4x256x1 ![0, 1] bcast_S4x256_S4x256x1_0_1 : (⟨S4x256, .f32⟩ : BufTy).Contents (Elt F) → (⟨S4x256x1, .f32⟩ : BufTy).Contents (Elt F)),
    unary main_arg2 main_v4589 ((extractStridedSlice S4x1x16 ![0, 229, 0] · slices_S4x512x16_S4x1x16_0_229_0) : (⟨S4x512x16, .f32⟩ : BufTy).Contents (Elt F) → (⟨S4x1x16, .f32⟩ : BufTy).Contents (Elt F)),
    reshape main_v4589 main_v4590 rfl shapeCasts_S4x1x16_S4x16,
    unary main_v4590 main_v4591 (broadcastInDim S4x1x16 ![0, 2] bcast_S4x16_S4x1x16_0_2 : (⟨S4x16, .f32⟩ : BufTy).Contents (Elt F) → (⟨S4x1x16, .f32⟩ : BufTy).Contents (Elt F)),
    unary main_v4588 main_v4592 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4591 main_v4593 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4592 main_v4593 main_v4594 (mulf : (⟨S4x256x16, .f32⟩ : BufTy).Contents (Elt F) → (⟨S4x256x16, .f32⟩ : BufTy).Contents (Elt F) → (⟨S4x256x16, .f32⟩ : BufTy).Contents (Elt F)),
    binary main_v4585 main_v4594 main_v4595 (addf : (⟨S4x256x16, .f32⟩ : BufTy).Contents (Elt F) → (⟨S4x256x16, .f32⟩ : BufTy).Contents (Elt F) → (⟨S4x256x16, .f32⟩ : BufTy).Contents (Elt F)),
    unary main_arg3 main_v4596 ((extractStridedSlice S4x1x16 ![0, 229, 0] · slices_S4x512x16_S4x1x16_0_229_0) : (⟨S4x512x16, .f32⟩ : BufTy).Contents (Elt F) → (⟨S4x1x16, .f32⟩ : BufTy).Contents (Elt F)),
    reshape main_v4596 main_v4597 rfl shapeCasts_S4x1x16_S4x16,
    unary main_v4597 main_v4598 (broadcastInDim S4x1x16 ![0, 2] bcast_S4x16_S4x1x16_0_2 : (⟨S4x16, .f32⟩ : BufTy).Contents (Elt F) → (⟨S4x1x16, .f32⟩ : BufTy).Contents (Elt F)),
    unary main_v4598 main_v4599 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4595 main_v4599 main_v4600 (mulf : (⟨S4x256x16, .f32⟩ : BufTy).Contents (Elt F) → (⟨S4x256x16, .f32⟩ : BufTy).Contents (Elt F) → (⟨S4x256x16, .f32⟩ : BufTy).Contents (Elt F)),
    nullary main_cst_458 (constant S_ .f32 0x00000000#32),
    binary main_v4600 main_cst_458 main_v4601 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_459 (constantI S_ 32 229#32),
    unary main_c_459 main_v4602 (broadcastInDim S1 ![] bcast_S_S1 : (⟨S_, .i32⟩ : BufTy).Contents (Elt F) → (⟨S1, .i32⟩ : BufTy).Contents (Elt F)),
    ternary main_v4583 main_v4602 main_v4601 main_v4603 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps229_ok : (stepOps229 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step229_val (V : Valuation τ sig (Elt Ideal)) :
    after (stepOps229 (F := Ideal)) V (no_index (Proc.devRef .tc main_v4595)) = stepH 229 (by decide) (V (Proc.devRef .tc main_arg0)) (V (Proc.devRef .tc main_v3)) (V (Proc.devRef .tc main_arg2)) (V (Proc.devRef .tc main_v4575))
    ∧ after (stepOps229 (F := Ideal)) V (no_index (Proc.devRef .tc main_v4603)) = stepY 229 (by decide) (V (Proc.devRef .tc main_arg3)) (stepH 229 (by decide) (V (Proc.devRef .tc main_arg0)) (V (Proc.devRef .tc main_v3)) (V (Proc.devRef .tc main_arg2)) (V (Proc.devRef .tc main_v4575))) (V (Proc.devRef .tc main_v4583)) := by
  simp only [stepOps229]
  after_results_simp
  first | exact ⟨rfl, rfl⟩ | fail "value"
/-- Step 230 of the loop: operations 5067 … 5088 of the program. -/
abbrev stepOps230 : List (HloOp τ sig (Elt F)) :=
  [ unary main_v3 main_v4604 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4595 main_v4604 main_v4605 (mulf : (⟨S4x256x16, .f32⟩ : BufTy).Contents (Elt F) → (⟨S4x256x16, .f32⟩ : BufTy).Contents (Elt F) → (⟨S4x256x16, .f32⟩ : BufTy).Contents (Elt F)),
    unary main_arg0 main_v4606 ((extractStridedSlice S4x1x256 ![0, 230, 0] · slices_S4x512x256_S4x1x256_0_230_0) : (⟨S4x512x256, .f32⟩ : BufTy).Contents (Elt F) → (⟨S4x1x256, .f32⟩ : BufTy).Contents (Elt F)),
    reshape main_v4606 main_v4607 rfl shapeCasts_S4x1x256_S4x256,
    unary main_v4607 main_v4608 (broadcastInDim S4x256x1 ![0, 1] bcast_S4x256_S4x256x1_0_1 : (⟨S4x256, .f32⟩ : BufTy).Contents (Elt F) → (⟨S4x256x1, .f32⟩ : BufTy).Contents (Elt F)),
    unary main_arg2 main_v4609 ((extractStridedSlice S4x1x16 ![0, 230, 0] · slices_S4x512x16_S4x1x16_0_230_0) : (⟨S4x512x16, .f32⟩ : BufTy).Contents (Elt F) → (⟨S4x1x16, .f32⟩ : BufTy).Contents (Elt F)),
    reshape main_v4609 main_v4610 rfl shapeCasts_S4x1x16_S4x16,
    unary main_v4610 main_v4611 (broadcastInDim S4x1x16 ![0, 2] bcast_S4x16_S4x1x16_0_2 : (⟨S4x16, .f32⟩ : BufTy).Contents (Elt F) → (⟨S4x1x16, .f32⟩ : BufTy).Contents (Elt F)),
    unary main_v4608 main_v4612 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4611 main_v4613 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4612 main_v4613 main_v4614 (mulf : (⟨S4x256x16, .f32⟩ : BufTy).Contents (Elt F) → (⟨S4x256x16, .f32⟩ : BufTy).Contents (Elt F) → (⟨S4x256x16, .f32⟩ : BufTy).Contents (Elt F)),
    binary main_v4605 main_v4614 main_v4615 (addf : (⟨S4x256x16, .f32⟩ : BufTy).Contents (Elt F) → (⟨S4x256x16, .f32⟩ : BufTy).Contents (Elt F) → (⟨S4x256x16, .f32⟩ : BufTy).Contents (Elt F)),
    unary main_arg3 main_v4616 ((extractStridedSlice S4x1x16 ![0, 230, 0] · slices_S4x512x16_S4x1x16_0_230_0) : (⟨S4x512x16, .f32⟩ : BufTy).Contents (Elt F) → (⟨S4x1x16, .f32⟩ : BufTy).Contents (Elt F)),
    reshape main_v4616 main_v4617 rfl shapeCasts_S4x1x16_S4x16,
    unary main_v4617 main_v4618 (broadcastInDim S4x1x16 ![0, 2] bcast_S4x16_S4x1x16_0_2 : (⟨S4x16, .f32⟩ : BufTy).Contents (Elt F) → (⟨S4x1x16, .f32⟩ : BufTy).Contents (Elt F)),
    unary main_v4618 main_v4619 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4615 main_v4619 main_v4620 (mulf : (⟨S4x256x16, .f32⟩ : BufTy).Contents (Elt F) → (⟨S4x256x16, .f32⟩ : BufTy).Contents (Elt F) → (⟨S4x256x16, .f32⟩ : BufTy).Contents (Elt F)),
    nullary main_cst_460 (constant S_ .f32 0x00000000#32),
    binary main_v4620 main_cst_460 main_v4621 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_461 (constantI S_ 32 230#32),
    unary main_c_461 main_v4622 (broadcastInDim S1 ![] bcast_S_S1 : (⟨S_, .i32⟩ : BufTy).Contents (Elt F) → (⟨S1, .i32⟩ : BufTy).Contents (Elt F)),
    ternary main_v4603 main_v4622 main_v4621 main_v4623 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps230_ok : (stepOps230 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step230_val (V : Valuation τ sig (Elt Ideal)) :
    after (stepOps230 (F := Ideal)) V (no_index (Proc.devRef .tc main_v4615)) = stepH 230 (by decide) (V (Proc.devRef .tc main_arg0)) (V (Proc.devRef .tc main_v3)) (V (Proc.devRef .tc main_arg2)) (V (Proc.devRef .tc main_v4595))
    ∧ after (stepOps230 (F := Ideal)) V (no_index (Proc.devRef .tc main_v4623)) = stepY 230 (by decide) (V (Proc.devRef .tc main_arg3)) (stepH 230 (by decide) (V (Proc.devRef .tc main_arg0)) (V (Proc.devRef .tc main_v3)) (V (Proc.devRef .tc main_arg2)) (V (Proc.devRef .tc main_v4595))) (V (Proc.devRef .tc main_v4603)) := by
  simp only [stepOps230]
  after_results_simp
  first | exact ⟨rfl, rfl⟩ | fail "value"
/-- Step 231 of the loop: operations 5089 … 5110 of the program. -/
abbrev stepOps231 : List (HloOp τ sig (Elt F)) :=
  [ unary main_v3 main_v4624 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4615 main_v4624 main_v4625 (mulf : (⟨S4x256x16, .f32⟩ : BufTy).Contents (Elt F) → (⟨S4x256x16, .f32⟩ : BufTy).Contents (Elt F) → (⟨S4x256x16, .f32⟩ : BufTy).Contents (Elt F)),
    unary main_arg0 main_v4626 ((extractStridedSlice S4x1x256 ![0, 231, 0] · slices_S4x512x256_S4x1x256_0_231_0) : (⟨S4x512x256, .f32⟩ : BufTy).Contents (Elt F) → (⟨S4x1x256, .f32⟩ : BufTy).Contents (Elt F)),
    reshape main_v4626 main_v4627 rfl shapeCasts_S4x1x256_S4x256,
    unary main_v4627 main_v4628 (broadcastInDim S4x256x1 ![0, 1] bcast_S4x256_S4x256x1_0_1 : (⟨S4x256, .f32⟩ : BufTy).Contents (Elt F) → (⟨S4x256x1, .f32⟩ : BufTy).Contents (Elt F)),
    unary main_arg2 main_v4629 ((extractStridedSlice S4x1x16 ![0, 231, 0] · slices_S4x512x16_S4x1x16_0_231_0) : (⟨S4x512x16, .f32⟩ : BufTy).Contents (Elt F) → (⟨S4x1x16, .f32⟩ : BufTy).Contents (Elt F)),
    reshape main_v4629 main_v4630 rfl shapeCasts_S4x1x16_S4x16,
    unary main_v4630 main_v4631 (broadcastInDim S4x1x16 ![0, 2] bcast_S4x16_S4x1x16_0_2 : (⟨S4x16, .f32⟩ : BufTy).Contents (Elt F) → (⟨S4x1x16, .f32⟩ : BufTy).Contents (Elt F)),
    unary main_v4628 main_v4632 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4631 main_v4633 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4632 main_v4633 main_v4634 (mulf : (⟨S4x256x16, .f32⟩ : BufTy).Contents (Elt F) → (⟨S4x256x16, .f32⟩ : BufTy).Contents (Elt F) → (⟨S4x256x16, .f32⟩ : BufTy).Contents (Elt F)),
    binary main_v4625 main_v4634 main_v4635 (addf : (⟨S4x256x16, .f32⟩ : BufTy).Contents (Elt F) → (⟨S4x256x16, .f32⟩ : BufTy).Contents (Elt F) → (⟨S4x256x16, .f32⟩ : BufTy).Contents (Elt F)),
    unary main_arg3 main_v4636 ((extractStridedSlice S4x1x16 ![0, 231, 0] · slices_S4x512x16_S4x1x16_0_231_0) : (⟨S4x512x16, .f32⟩ : BufTy).Contents (Elt F) → (⟨S4x1x16, .f32⟩ : BufTy).Contents (Elt F)),
    reshape main_v4636 main_v4637 rfl shapeCasts_S4x1x16_S4x16,
    unary main_v4637 main_v4638 (broadcastInDim S4x1x16 ![0, 2] bcast_S4x16_S4x1x16_0_2 : (⟨S4x16, .f32⟩ : BufTy).Contents (Elt F) → (⟨S4x1x16, .f32⟩ : BufTy).Contents (Elt F)),
    unary main_v4638 main_v4639 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4635 main_v4639 main_v4640 (mulf : (⟨S4x256x16, .f32⟩ : BufTy).Contents (Elt F) → (⟨S4x256x16, .f32⟩ : BufTy).Contents (Elt F) → (⟨S4x256x16, .f32⟩ : BufTy).Contents (Elt F)),
    nullary main_cst_462 (constant S_ .f32 0x00000000#32),
    binary main_v4640 main_cst_462 main_v4641 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_463 (constantI S_ 32 231#32),
    unary main_c_463 main_v4642 (broadcastInDim S1 ![] bcast_S_S1 : (⟨S_, .i32⟩ : BufTy).Contents (Elt F) → (⟨S1, .i32⟩ : BufTy).Contents (Elt F)),
    ternary main_v4623 main_v4642 main_v4641 main_v4643 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps231_ok : (stepOps231 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step231_val (V : Valuation τ sig (Elt Ideal)) :
    after (stepOps231 (F := Ideal)) V (no_index (Proc.devRef .tc main_v4635)) = stepH 231 (by decide) (V (Proc.devRef .tc main_arg0)) (V (Proc.devRef .tc main_v3)) (V (Proc.devRef .tc main_arg2)) (V (Proc.devRef .tc main_v4615))
    ∧ after (stepOps231 (F := Ideal)) V (no_index (Proc.devRef .tc main_v4643)) = stepY 231 (by decide) (V (Proc.devRef .tc main_arg3)) (stepH 231 (by decide) (V (Proc.devRef .tc main_arg0)) (V (Proc.devRef .tc main_v3)) (V (Proc.devRef .tc main_arg2)) (V (Proc.devRef .tc main_v4615))) (V (Proc.devRef .tc main_v4623)) := by
  simp only [stepOps231]
  after_results_simp
  first | exact ⟨rfl, rfl⟩ | fail "value"
/-- Step 232 of the loop: operations 5111 … 5132 of the program. -/
abbrev stepOps232 : List (HloOp τ sig (Elt F)) :=
  [ unary main_v3 main_v4644 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4635 main_v4644 main_v4645 (mulf : (⟨S4x256x16, .f32⟩ : BufTy).Contents (Elt F) → (⟨S4x256x16, .f32⟩ : BufTy).Contents (Elt F) → (⟨S4x256x16, .f32⟩ : BufTy).Contents (Elt F)),
    unary main_arg0 main_v4646 ((extractStridedSlice S4x1x256 ![0, 232, 0] · slices_S4x512x256_S4x1x256_0_232_0) : (⟨S4x512x256, .f32⟩ : BufTy).Contents (Elt F) → (⟨S4x1x256, .f32⟩ : BufTy).Contents (Elt F)),
    reshape main_v4646 main_v4647 rfl shapeCasts_S4x1x256_S4x256,
    unary main_v4647 main_v4648 (broadcastInDim S4x256x1 ![0, 1] bcast_S4x256_S4x256x1_0_1 : (⟨S4x256, .f32⟩ : BufTy).Contents (Elt F) → (⟨S4x256x1, .f32⟩ : BufTy).Contents (Elt F)),
    unary main_arg2 main_v4649 ((extractStridedSlice S4x1x16 ![0, 232, 0] · slices_S4x512x16_S4x1x16_0_232_0) : (⟨S4x512x16, .f32⟩ : BufTy).Contents (Elt F) → (⟨S4x1x16, .f32⟩ : BufTy).Contents (Elt F)),
    reshape main_v4649 main_v4650 rfl shapeCasts_S4x1x16_S4x16,
    unary main_v4650 main_v4651 (broadcastInDim S4x1x16 ![0, 2] bcast_S4x16_S4x1x16_0_2 : (⟨S4x16, .f32⟩ : BufTy).Contents (Elt F) → (⟨S4x1x16, .f32⟩ : BufTy).Contents (Elt F)),
    unary main_v4648 main_v4652 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4651 main_v4653 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4652 main_v4653 main_v4654 (mulf : (⟨S4x256x16, .f32⟩ : BufTy).Contents (Elt F) → (⟨S4x256x16, .f32⟩ : BufTy).Contents (Elt F) → (⟨S4x256x16, .f32⟩ : BufTy).Contents (Elt F)),
    binary main_v4645 main_v4654 main_v4655 (addf : (⟨S4x256x16, .f32⟩ : BufTy).Contents (Elt F) → (⟨S4x256x16, .f32⟩ : BufTy).Contents (Elt F) → (⟨S4x256x16, .f32⟩ : BufTy).Contents (Elt F)),
    unary main_arg3 main_v4656 ((extractStridedSlice S4x1x16 ![0, 232, 0] · slices_S4x512x16_S4x1x16_0_232_0) : (⟨S4x512x16, .f32⟩ : BufTy).Contents (Elt F) → (⟨S4x1x16, .f32⟩ : BufTy).Contents (Elt F)),
    reshape main_v4656 main_v4657 rfl shapeCasts_S4x1x16_S4x16,
    unary main_v4657 main_v4658 (broadcastInDim S4x1x16 ![0, 2] bcast_S4x16_S4x1x16_0_2 : (⟨S4x16, .f32⟩ : BufTy).Contents (Elt F) → (⟨S4x1x16, .f32⟩ : BufTy).Contents (Elt F)),
    unary main_v4658 main_v4659 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4655 main_v4659 main_v4660 (mulf : (⟨S4x256x16, .f32⟩ : BufTy).Contents (Elt F) → (⟨S4x256x16, .f32⟩ : BufTy).Contents (Elt F) → (⟨S4x256x16, .f32⟩ : BufTy).Contents (Elt F)),
    nullary main_cst_464 (constant S_ .f32 0x00000000#32),
    binary main_v4660 main_cst_464 main_v4661 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_465 (constantI S_ 32 232#32),
    unary main_c_465 main_v4662 (broadcastInDim S1 ![] bcast_S_S1 : (⟨S_, .i32⟩ : BufTy).Contents (Elt F) → (⟨S1, .i32⟩ : BufTy).Contents (Elt F)),
    ternary main_v4643 main_v4662 main_v4661 main_v4663 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps232_ok : (stepOps232 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step232_val (V : Valuation τ sig (Elt Ideal)) :
    after (stepOps232 (F := Ideal)) V (no_index (Proc.devRef .tc main_v4655)) = stepH 232 (by decide) (V (Proc.devRef .tc main_arg0)) (V (Proc.devRef .tc main_v3)) (V (Proc.devRef .tc main_arg2)) (V (Proc.devRef .tc main_v4635))
    ∧ after (stepOps232 (F := Ideal)) V (no_index (Proc.devRef .tc main_v4663)) = stepY 232 (by decide) (V (Proc.devRef .tc main_arg3)) (stepH 232 (by decide) (V (Proc.devRef .tc main_arg0)) (V (Proc.devRef .tc main_v3)) (V (Proc.devRef .tc main_arg2)) (V (Proc.devRef .tc main_v4635))) (V (Proc.devRef .tc main_v4643)) := by
  simp only [stepOps232]
  after_results_simp
  first | exact ⟨rfl, rfl⟩ | fail "value"
/-- Step 233 of the loop: operations 5133 … 5154 of the program. -/
abbrev stepOps233 : List (HloOp τ sig (Elt F)) :=
  [ unary main_v3 main_v4664 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4655 main_v4664 main_v4665 (mulf : (⟨S4x256x16, .f32⟩ : BufTy).Contents (Elt F) → (⟨S4x256x16, .f32⟩ : BufTy).Contents (Elt F) → (⟨S4x256x16, .f32⟩ : BufTy).Contents (Elt F)),
    unary main_arg0 main_v4666 ((extractStridedSlice S4x1x256 ![0, 233, 0] · slices_S4x512x256_S4x1x256_0_233_0) : (⟨S4x512x256, .f32⟩ : BufTy).Contents (Elt F) → (⟨S4x1x256, .f32⟩ : BufTy).Contents (Elt F)),
    reshape main_v4666 main_v4667 rfl shapeCasts_S4x1x256_S4x256,
    unary main_v4667 main_v4668 (broadcastInDim S4x256x1 ![0, 1] bcast_S4x256_S4x256x1_0_1 : (⟨S4x256, .f32⟩ : BufTy).Contents (Elt F) → (⟨S4x256x1, .f32⟩ : BufTy).Contents (Elt F)),
    unary main_arg2 main_v4669 ((extractStridedSlice S4x1x16 ![0, 233, 0] · slices_S4x512x16_S4x1x16_0_233_0) : (⟨S4x512x16, .f32⟩ : BufTy).Contents (Elt F) → (⟨S4x1x16, .f32⟩ : BufTy).Contents (Elt F)),
    reshape main_v4669 main_v4670 rfl shapeCasts_S4x1x16_S4x16,
    unary main_v4670 main_v4671 (broadcastInDim S4x1x16 ![0, 2] bcast_S4x16_S4x1x16_0_2 : (⟨S4x16, .f32⟩ : BufTy).Contents (Elt F) → (⟨S4x1x16, .f32⟩ : BufTy).Contents (Elt F)),
    unary main_v4668 main_v4672 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4671 main_v4673 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4672 main_v4673 main_v4674 (mulf : (⟨S4x256x16, .f32⟩ : BufTy).Contents (Elt F) → (⟨S4x256x16, .f32⟩ : BufTy).Contents (Elt F) → (⟨S4x256x16, .f32⟩ : BufTy).Contents (Elt F)),
    binary main_v4665 main_v4674 main_v4675 (addf : (⟨S4x256x16, .f32⟩ : BufTy).Contents (Elt F) → (⟨S4x256x16, .f32⟩ : BufTy).Contents (Elt F) → (⟨S4x256x16, .f32⟩ : BufTy).Contents (Elt F)),
    unary main_arg3 main_v4676 ((extractStridedSlice S4x1x16 ![0, 233, 0] · slices_S4x512x16_S4x1x16_0_233_0) : (⟨S4x512x16, .f32⟩ : BufTy).Contents (Elt F) → (⟨S4x1x16, .f32⟩ : BufTy).Contents (Elt F)),
    reshape main_v4676 main_v4677 rfl shapeCasts_S4x1x16_S4x16,
    unary main_v4677 main_v4678 (broadcastInDim S4x1x16 ![0, 2] bcast_S4x16_S4x1x16_0_2 : (⟨S4x16, .f32⟩ : BufTy).Contents (Elt F) → (⟨S4x1x16, .f32⟩ : BufTy).Contents (Elt F)),
    unary main_v4678 main_v4679 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4675 main_v4679 main_v4680 (mulf : (⟨S4x256x16, .f32⟩ : BufTy).Contents (Elt F) → (⟨S4x256x16, .f32⟩ : BufTy).Contents (Elt F) → (⟨S4x256x16, .f32⟩ : BufTy).Contents (Elt F)),
    nullary main_cst_466 (constant S_ .f32 0x00000000#32),
    binary main_v4680 main_cst_466 main_v4681 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_467 (constantI S_ 32 233#32),
    unary main_c_467 main_v4682 (broadcastInDim S1 ![] bcast_S_S1 : (⟨S_, .i32⟩ : BufTy).Contents (Elt F) → (⟨S1, .i32⟩ : BufTy).Contents (Elt F)),
    ternary main_v4663 main_v4682 main_v4681 main_v4683 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps233_ok : (stepOps233 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step233_val (V : Valuation τ sig (Elt Ideal)) :
    after (stepOps233 (F := Ideal)) V (no_index (Proc.devRef .tc main_v4675)) = stepH 233 (by decide) (V (Proc.devRef .tc main_arg0)) (V (Proc.devRef .tc main_v3)) (V (Proc.devRef .tc main_arg2)) (V (Proc.devRef .tc main_v4655))
    ∧ after (stepOps233 (F := Ideal)) V (no_index (Proc.devRef .tc main_v4683)) = stepY 233 (by decide) (V (Proc.devRef .tc main_arg3)) (stepH 233 (by decide) (V (Proc.devRef .tc main_arg0)) (V (Proc.devRef .tc main_v3)) (V (Proc.devRef .tc main_arg2)) (V (Proc.devRef .tc main_v4655))) (V (Proc.devRef .tc main_v4663)) := by
  simp only [stepOps233]
  after_results_simp
  first | exact ⟨rfl, rfl⟩ | fail "value"
/-- Step 234 of the loop: operations 5155 … 5176 of the program. -/
abbrev stepOps234 : List (HloOp τ sig (Elt F)) :=
  [ unary main_v3 main_v4684 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4675 main_v4684 main_v4685 (mulf : (⟨S4x256x16, .f32⟩ : BufTy).Contents (Elt F) → (⟨S4x256x16, .f32⟩ : BufTy).Contents (Elt F) → (⟨S4x256x16, .f32⟩ : BufTy).Contents (Elt F)),
    unary main_arg0 main_v4686 ((extractStridedSlice S4x1x256 ![0, 234, 0] · slices_S4x512x256_S4x1x256_0_234_0) : (⟨S4x512x256, .f32⟩ : BufTy).Contents (Elt F) → (⟨S4x1x256, .f32⟩ : BufTy).Contents (Elt F)),
    reshape main_v4686 main_v4687 rfl shapeCasts_S4x1x256_S4x256,
    unary main_v4687 main_v4688 (broadcastInDim S4x256x1 ![0, 1] bcast_S4x256_S4x256x1_0_1 : (⟨S4x256, .f32⟩ : BufTy).Contents (Elt F) → (⟨S4x256x1, .f32⟩ : BufTy).Contents (Elt F)),
    unary main_arg2 main_v4689 ((extractStridedSlice S4x1x16 ![0, 234, 0] · slices_S4x512x16_S4x1x16_0_234_0) : (⟨S4x512x16, .f32⟩ : BufTy).Contents (Elt F) → (⟨S4x1x16, .f32⟩ : BufTy).Contents (Elt F)),
    reshape main_v4689 main_v4690 rfl shapeCasts_S4x1x16_S4x16,
    unary main_v4690 main_v4691 (broadcastInDim S4x1x16 ![0, 2] bcast_S4x16_S4x1x16_0_2 : (⟨S4x16, .f32⟩ : BufTy).Contents (Elt F) → (⟨S4x1x16, .f32⟩ : BufTy).Contents (Elt F)),
    unary main_v4688 main_v4692 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4691 main_v4693 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4692 main_v4693 main_v4694 (mulf : (⟨S4x256x16, .f32⟩ : BufTy).Contents (Elt F) → (⟨S4x256x16, .f32⟩ : BufTy).Contents (Elt F) → (⟨S4x256x16, .f32⟩ : BufTy).Contents (Elt F)),
    binary main_v4685 main_v4694 main_v4695 (addf : (⟨S4x256x16, .f32⟩ : BufTy).Contents (Elt F) → (⟨S4x256x16, .f32⟩ : BufTy).Contents (Elt F) → (⟨S4x256x16, .f32⟩ : BufTy).Contents (Elt F)),
    unary main_arg3 main_v4696 ((extractStridedSlice S4x1x16 ![0, 234, 0] · slices_S4x512x16_S4x1x16_0_234_0) : (⟨S4x512x16, .f32⟩ : BufTy).Contents (Elt F) → (⟨S4x1x16, .f32⟩ : BufTy).Contents (Elt F)),
    reshape main_v4696 main_v4697 rfl shapeCasts_S4x1x16_S4x16,
    unary main_v4697 main_v4698 (broadcastInDim S4x1x16 ![0, 2] bcast_S4x16_S4x1x16_0_2 : (⟨S4x16, .f32⟩ : BufTy).Contents (Elt F) → (⟨S4x1x16, .f32⟩ : BufTy).Contents (Elt F)),
    unary main_v4698 main_v4699 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4695 main_v4699 main_v4700 (mulf : (⟨S4x256x16, .f32⟩ : BufTy).Contents (Elt F) → (⟨S4x256x16, .f32⟩ : BufTy).Contents (Elt F) → (⟨S4x256x16, .f32⟩ : BufTy).Contents (Elt F)),
    nullary main_cst_468 (constant S_ .f32 0x00000000#32),
    binary main_v4700 main_cst_468 main_v4701 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_469 (constantI S_ 32 234#32),
    unary main_c_469 main_v4702 (broadcastInDim S1 ![] bcast_S_S1 : (⟨S_, .i32⟩ : BufTy).Contents (Elt F) → (⟨S1, .i32⟩ : BufTy).Contents (Elt F)),
    ternary main_v4683 main_v4702 main_v4701 main_v4703 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps234_ok : (stepOps234 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step234_val (V : Valuation τ sig (Elt Ideal)) :
    after (stepOps234 (F := Ideal)) V (no_index (Proc.devRef .tc main_v4695)) = stepH 234 (by decide) (V (Proc.devRef .tc main_arg0)) (V (Proc.devRef .tc main_v3)) (V (Proc.devRef .tc main_arg2)) (V (Proc.devRef .tc main_v4675))
    ∧ after (stepOps234 (F := Ideal)) V (no_index (Proc.devRef .tc main_v4703)) = stepY 234 (by decide) (V (Proc.devRef .tc main_arg3)) (stepH 234 (by decide) (V (Proc.devRef .tc main_arg0)) (V (Proc.devRef .tc main_v3)) (V (Proc.devRef .tc main_arg2)) (V (Proc.devRef .tc main_v4675))) (V (Proc.devRef .tc main_v4683)) := by
  simp only [stepOps234]
  after_results_simp
  first | exact ⟨rfl, rfl⟩ | fail "value"
/-- Step 235 of the loop: operations 5177 … 5198 of the program. -/
abbrev stepOps235 : List (HloOp τ sig (Elt F)) :=
  [ unary main_v3 main_v4704 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4695 main_v4704 main_v4705 (mulf : (⟨S4x256x16, .f32⟩ : BufTy).Contents (Elt F) → (⟨S4x256x16, .f32⟩ : BufTy).Contents (Elt F) → (⟨S4x256x16, .f32⟩ : BufTy).Contents (Elt F)),
    unary main_arg0 main_v4706 ((extractStridedSlice S4x1x256 ![0, 235, 0] · slices_S4x512x256_S4x1x256_0_235_0) : (⟨S4x512x256, .f32⟩ : BufTy).Contents (Elt F) → (⟨S4x1x256, .f32⟩ : BufTy).Contents (Elt F)),
    reshape main_v4706 main_v4707 rfl shapeCasts_S4x1x256_S4x256,
    unary main_v4707 main_v4708 (broadcastInDim S4x256x1 ![0, 1] bcast_S4x256_S4x256x1_0_1 : (⟨S4x256, .f32⟩ : BufTy).Contents (Elt F) → (⟨S4x256x1, .f32⟩ : BufTy).Contents (Elt F)),
    unary main_arg2 main_v4709 ((extractStridedSlice S4x1x16 ![0, 235, 0] · slices_S4x512x16_S4x1x16_0_235_0) : (⟨S4x512x16, .f32⟩ : BufTy).Contents (Elt F) → (⟨S4x1x16, .f32⟩ : BufTy).Contents (Elt F)),
    reshape main_v4709 main_v4710 rfl shapeCasts_S4x1x16_S4x16,
    unary main_v4710 main_v4711 (broadcastInDim S4x1x16 ![0, 2] bcast_S4x16_S4x1x16_0_2 : (⟨S4x16, .f32⟩ : BufTy).Contents (Elt F) → (⟨S4x1x16, .f32⟩ : BufTy).Contents (Elt F)),
    unary main_v4708 main_v4712 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4711 main_v4713 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4712 main_v4713 main_v4714 (mulf : (⟨S4x256x16, .f32⟩ : BufTy).Contents (Elt F) → (⟨S4x256x16, .f32⟩ : BufTy).Contents (Elt F) → (⟨S4x256x16, .f32⟩ : BufTy).Contents (Elt F)),
    binary main_v4705 main_v4714 main_v4715 (addf : (⟨S4x256x16, .f32⟩ : BufTy).Contents (Elt F) → (⟨S4x256x16, .f32⟩ : BufTy).Contents (Elt F) → (⟨S4x256x16, .f32⟩ : BufTy).Contents (Elt F)),
    unary main_arg3 main_v4716 ((extractStridedSlice S4x1x16 ![0, 235, 0] · slices_S4x512x16_S4x1x16_0_235_0) : (⟨S4x512x16, .f32⟩ : BufTy).Contents (Elt F) → (⟨S4x1x16, .f32⟩ : BufTy).Contents (Elt F)),
    reshape main_v4716 main_v4717 rfl shapeCasts_S4x1x16_S4x16,
    unary main_v4717 main_v4718 (broadcastInDim S4x1x16 ![0, 2] bcast_S4x16_S4x1x16_0_2 : (⟨S4x16, .f32⟩ : BufTy).Contents (Elt F) → (⟨S4x1x16, .f32⟩ : BufTy).Contents (Elt F)),
    unary main_v4718 main_v4719 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4715 main_v4719 main_v4720 (mulf : (⟨S4x256x16, .f32⟩ : BufTy).Contents (Elt F) → (⟨S4x256x16, .f32⟩ : BufTy).Contents (Elt F) → (⟨S4x256x16, .f32⟩ : BufTy).Contents (Elt F)),
    nullary main_cst_470 (constant S_ .f32 0x00000000#32),
    binary main_v4720 main_cst_470 main_v4721 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_471 (constantI S_ 32 235#32),
    unary main_c_471 main_v4722 (broadcastInDim S1 ![] bcast_S_S1 : (⟨S_, .i32⟩ : BufTy).Contents (Elt F) → (⟨S1, .i32⟩ : BufTy).Contents (Elt F)),
    ternary main_v4703 main_v4722 main_v4721 main_v4723 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps235_ok : (stepOps235 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step235_val (V : Valuation τ sig (Elt Ideal)) :
    after (stepOps235 (F := Ideal)) V (no_index (Proc.devRef .tc main_v4715)) = stepH 235 (by decide) (V (Proc.devRef .tc main_arg0)) (V (Proc.devRef .tc main_v3)) (V (Proc.devRef .tc main_arg2)) (V (Proc.devRef .tc main_v4695))
    ∧ after (stepOps235 (F := Ideal)) V (no_index (Proc.devRef .tc main_v4723)) = stepY 235 (by decide) (V (Proc.devRef .tc main_arg3)) (stepH 235 (by decide) (V (Proc.devRef .tc main_arg0)) (V (Proc.devRef .tc main_v3)) (V (Proc.devRef .tc main_arg2)) (V (Proc.devRef .tc main_v4695))) (V (Proc.devRef .tc main_v4703)) := by
  simp only [stepOps235]
  after_results_simp
  first | exact ⟨rfl, rfl⟩ | fail "value"
/-- Step 236 of the loop: operations 5199 … 5220 of the program. -/
abbrev stepOps236 : List (HloOp τ sig (Elt F)) :=
  [ unary main_v3 main_v4724 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4715 main_v4724 main_v4725 (mulf : (⟨S4x256x16, .f32⟩ : BufTy).Contents (Elt F) → (⟨S4x256x16, .f32⟩ : BufTy).Contents (Elt F) → (⟨S4x256x16, .f32⟩ : BufTy).Contents (Elt F)),
    unary main_arg0 main_v4726 ((extractStridedSlice S4x1x256 ![0, 236, 0] · slices_S4x512x256_S4x1x256_0_236_0) : (⟨S4x512x256, .f32⟩ : BufTy).Contents (Elt F) → (⟨S4x1x256, .f32⟩ : BufTy).Contents (Elt F)),
    reshape main_v4726 main_v4727 rfl shapeCasts_S4x1x256_S4x256,
    unary main_v4727 main_v4728 (broadcastInDim S4x256x1 ![0, 1] bcast_S4x256_S4x256x1_0_1 : (⟨S4x256, .f32⟩ : BufTy).Contents (Elt F) → (⟨S4x256x1, .f32⟩ : BufTy).Contents (Elt F)),
    unary main_arg2 main_v4729 ((extractStridedSlice S4x1x16 ![0, 236, 0] · slices_S4x512x16_S4x1x16_0_236_0) : (⟨S4x512x16, .f32⟩ : BufTy).Contents (Elt F) → (⟨S4x1x16, .f32⟩ : BufTy).Contents (Elt F)),
    reshape main_v4729 main_v4730 rfl shapeCasts_S4x1x16_S4x16,
    unary main_v4730 main_v4731 (broadcastInDim S4x1x16 ![0, 2] bcast_S4x16_S4x1x16_0_2 : (⟨S4x16, .f32⟩ : BufTy).Contents (Elt F) → (⟨S4x1x16, .f32⟩ : BufTy).Contents (Elt F)),
    unary main_v4728 main_v4732 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4731 main_v4733 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4732 main_v4733 main_v4734 (mulf : (⟨S4x256x16, .f32⟩ : BufTy).Contents (Elt F) → (⟨S4x256x16, .f32⟩ : BufTy).Contents (Elt F) → (⟨S4x256x16, .f32⟩ : BufTy).Contents (Elt F)),
    binary main_v4725 main_v4734 main_v4735 (addf : (⟨S4x256x16, .f32⟩ : BufTy).Contents (Elt F) → (⟨S4x256x16, .f32⟩ : BufTy).Contents (Elt F) → (⟨S4x256x16, .f32⟩ : BufTy).Contents (Elt F)),
    unary main_arg3 main_v4736 ((extractStridedSlice S4x1x16 ![0, 236, 0] · slices_S4x512x16_S4x1x16_0_236_0) : (⟨S4x512x16, .f32⟩ : BufTy).Contents (Elt F) → (⟨S4x1x16, .f32⟩ : BufTy).Contents (Elt F)),
    reshape main_v4736 main_v4737 rfl shapeCasts_S4x1x16_S4x16,
    unary main_v4737 main_v4738 (broadcastInDim S4x1x16 ![0, 2] bcast_S4x16_S4x1x16_0_2 : (⟨S4x16, .f32⟩ : BufTy).Contents (Elt F) → (⟨S4x1x16, .f32⟩ : BufTy).Contents (Elt F)),
    unary main_v4738 main_v4739 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4735 main_v4739 main_v4740 (mulf : (⟨S4x256x16, .f32⟩ : BufTy).Contents (Elt F) → (⟨S4x256x16, .f32⟩ : BufTy).Contents (Elt F) → (⟨S4x256x16, .f32⟩ : BufTy).Contents (Elt F)),
    nullary main_cst_472 (constant S_ .f32 0x00000000#32),
    binary main_v4740 main_cst_472 main_v4741 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_473 (constantI S_ 32 236#32),
    unary main_c_473 main_v4742 (broadcastInDim S1 ![] bcast_S_S1 : (⟨S_, .i32⟩ : BufTy).Contents (Elt F) → (⟨S1, .i32⟩ : BufTy).Contents (Elt F)),
    ternary main_v4723 main_v4742 main_v4741 main_v4743 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps236_ok : (stepOps236 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step236_val (V : Valuation τ sig (Elt Ideal)) :
    after (stepOps236 (F := Ideal)) V (no_index (Proc.devRef .tc main_v4735)) = stepH 236 (by decide) (V (Proc.devRef .tc main_arg0)) (V (Proc.devRef .tc main_v3)) (V (Proc.devRef .tc main_arg2)) (V (Proc.devRef .tc main_v4715))
    ∧ after (stepOps236 (F := Ideal)) V (no_index (Proc.devRef .tc main_v4743)) = stepY 236 (by decide) (V (Proc.devRef .tc main_arg3)) (stepH 236 (by decide) (V (Proc.devRef .tc main_arg0)) (V (Proc.devRef .tc main_v3)) (V (Proc.devRef .tc main_arg2)) (V (Proc.devRef .tc main_v4715))) (V (Proc.devRef .tc main_v4723)) := by
  simp only [stepOps236]
  after_results_simp
  first | exact ⟨rfl, rfl⟩ | fail "value"
/-- Step 237 of the loop: operations 5221 … 5242 of the program. -/
abbrev stepOps237 : List (HloOp τ sig (Elt F)) :=
  [ unary main_v3 main_v4744 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4735 main_v4744 main_v4745 (mulf : (⟨S4x256x16, .f32⟩ : BufTy).Contents (Elt F) → (⟨S4x256x16, .f32⟩ : BufTy).Contents (Elt F) → (⟨S4x256x16, .f32⟩ : BufTy).Contents (Elt F)),
    unary main_arg0 main_v4746 ((extractStridedSlice S4x1x256 ![0, 237, 0] · slices_S4x512x256_S4x1x256_0_237_0) : (⟨S4x512x256, .f32⟩ : BufTy).Contents (Elt F) → (⟨S4x1x256, .f32⟩ : BufTy).Contents (Elt F)),
    reshape main_v4746 main_v4747 rfl shapeCasts_S4x1x256_S4x256,
    unary main_v4747 main_v4748 (broadcastInDim S4x256x1 ![0, 1] bcast_S4x256_S4x256x1_0_1 : (⟨S4x256, .f32⟩ : BufTy).Contents (Elt F) → (⟨S4x256x1, .f32⟩ : BufTy).Contents (Elt F)),
    unary main_arg2 main_v4749 ((extractStridedSlice S4x1x16 ![0, 237, 0] · slices_S4x512x16_S4x1x16_0_237_0) : (⟨S4x512x16, .f32⟩ : BufTy).Contents (Elt F) → (⟨S4x1x16, .f32⟩ : BufTy).Contents (Elt F)),
    reshape main_v4749 main_v4750 rfl shapeCasts_S4x1x16_S4x16,
    unary main_v4750 main_v4751 (broadcastInDim S4x1x16 ![0, 2] bcast_S4x16_S4x1x16_0_2 : (⟨S4x16, .f32⟩ : BufTy).Contents (Elt F) → (⟨S4x1x16, .f32⟩ : BufTy).Contents (Elt F)),
    unary main_v4748 main_v4752 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4751 main_v4753 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4752 main_v4753 main_v4754 (mulf : (⟨S4x256x16, .f32⟩ : BufTy).Contents (Elt F) → (⟨S4x256x16, .f32⟩ : BufTy).Contents (Elt F) → (⟨S4x256x16, .f32⟩ : BufTy).Contents (Elt F)),
    binary main_v4745 main_v4754 main_v4755 (addf : (⟨S4x256x16, .f32⟩ : BufTy).Contents (Elt F) → (⟨S4x256x16, .f32⟩ : BufTy).Contents (Elt F) → (⟨S4x256x16, .f32⟩ : BufTy).Contents (Elt F)),
    unary main_arg3 main_v4756 ((extractStridedSlice S4x1x16 ![0, 237, 0] · slices_S4x512x16_S4x1x16_0_237_0) : (⟨S4x512x16, .f32⟩ : BufTy).Contents (Elt F) → (⟨S4x1x16, .f32⟩ : BufTy).Contents (Elt F)),
    reshape main_v4756 main_v4757 rfl shapeCasts_S4x1x16_S4x16,
    unary main_v4757 main_v4758 (broadcastInDim S4x1x16 ![0, 2] bcast_S4x16_S4x1x16_0_2 : (⟨S4x16, .f32⟩ : BufTy).Contents (Elt F) → (⟨S4x1x16, .f32⟩ : BufTy).Contents (Elt F)),
    unary main_v4758 main_v4759 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4755 main_v4759 main_v4760 (mulf : (⟨S4x256x16, .f32⟩ : BufTy).Contents (Elt F) → (⟨S4x256x16, .f32⟩ : BufTy).Contents (Elt F) → (⟨S4x256x16, .f32⟩ : BufTy).Contents (Elt F)),
    nullary main_cst_474 (constant S_ .f32 0x00000000#32),
    binary main_v4760 main_cst_474 main_v4761 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_475 (constantI S_ 32 237#32),
    unary main_c_475 main_v4762 (broadcastInDim S1 ![] bcast_S_S1 : (⟨S_, .i32⟩ : BufTy).Contents (Elt F) → (⟨S1, .i32⟩ : BufTy).Contents (Elt F)),
    ternary main_v4743 main_v4762 main_v4761 main_v4763 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps237_ok : (stepOps237 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step237_val (V : Valuation τ sig (Elt Ideal)) :
    after (stepOps237 (F := Ideal)) V (no_index (Proc.devRef .tc main_v4755)) = stepH 237 (by decide) (V (Proc.devRef .tc main_arg0)) (V (Proc.devRef .tc main_v3)) (V (Proc.devRef .tc main_arg2)) (V (Proc.devRef .tc main_v4735))
    ∧ after (stepOps237 (F := Ideal)) V (no_index (Proc.devRef .tc main_v4763)) = stepY 237 (by decide) (V (Proc.devRef .tc main_arg3)) (stepH 237 (by decide) (V (Proc.devRef .tc main_arg0)) (V (Proc.devRef .tc main_v3)) (V (Proc.devRef .tc main_arg2)) (V (Proc.devRef .tc main_v4735))) (V (Proc.devRef .tc main_v4743)) := by
  simp only [stepOps237]
  after_results_simp
  first | exact ⟨rfl, rfl⟩ | fail "value"
/-- Step 238 of the loop: operations 5243 … 5264 of the program. -/
abbrev stepOps238 : List (HloOp τ sig (Elt F)) :=
  [ unary main_v3 main_v4764 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4755 main_v4764 main_v4765 (mulf : (⟨S4x256x16, .f32⟩ : BufTy).Contents (Elt F) → (⟨S4x256x16, .f32⟩ : BufTy).Contents (Elt F) → (⟨S4x256x16, .f32⟩ : BufTy).Contents (Elt F)),
    unary main_arg0 main_v4766 ((extractStridedSlice S4x1x256 ![0, 238, 0] · slices_S4x512x256_S4x1x256_0_238_0) : (⟨S4x512x256, .f32⟩ : BufTy).Contents (Elt F) → (⟨S4x1x256, .f32⟩ : BufTy).Contents (Elt F)),
    reshape main_v4766 main_v4767 rfl shapeCasts_S4x1x256_S4x256,
    unary main_v4767 main_v4768 (broadcastInDim S4x256x1 ![0, 1] bcast_S4x256_S4x256x1_0_1 : (⟨S4x256, .f32⟩ : BufTy).Contents (Elt F) → (⟨S4x256x1, .f32⟩ : BufTy).Contents (Elt F)),
    unary main_arg2 main_v4769 ((extractStridedSlice S4x1x16 ![0, 238, 0] · slices_S4x512x16_S4x1x16_0_238_0) : (⟨S4x512x16, .f32⟩ : BufTy).Contents (Elt F) → (⟨S4x1x16, .f32⟩ : BufTy).Contents (Elt F)),
    reshape main_v4769 main_v4770 rfl shapeCasts_S4x1x16_S4x16,
    unary main_v4770 main_v4771 (broadcastInDim S4x1x16 ![0, 2] bcast_S4x16_S4x1x16_0_2 : (⟨S4x16, .f32⟩ : BufTy).Contents (Elt F) → (⟨S4x1x16, .f32⟩ : BufTy).Contents (Elt F)),
    unary main_v4768 main_v4772 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4771 main_v4773 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4772 main_v4773 main_v4774 (mulf : (⟨S4x256x16, .f32⟩ : BufTy).Contents (Elt F) → (⟨S4x256x16, .f32⟩ : BufTy).Contents (Elt F) → (⟨S4x256x16, .f32⟩ : BufTy).Contents (Elt F)),
    binary main_v4765 main_v4774 main_v4775 (addf : (⟨S4x256x16, .f32⟩ : BufTy).Contents (Elt F) → (⟨S4x256x16, .f32⟩ : BufTy).Contents (Elt F) → (⟨S4x256x16, .f32⟩ : BufTy).Contents (Elt F)),
    unary main_arg3 main_v4776 ((extractStridedSlice S4x1x16 ![0, 238, 0] · slices_S4x512x16_S4x1x16_0_238_0) : (⟨S4x512x16, .f32⟩ : BufTy).Contents (Elt F) → (⟨S4x1x16, .f32⟩ : BufTy).Contents (Elt F)),
    reshape main_v4776 main_v4777 rfl shapeCasts_S4x1x16_S4x16,
    unary main_v4777 main_v4778 (broadcastInDim S4x1x16 ![0, 2] bcast_S4x16_S4x1x16_0_2 : (⟨S4x16, .f32⟩ : BufTy).Contents (Elt F) → (⟨S4x1x16, .f32⟩ : BufTy).Contents (Elt F)),
    unary main_v4778 main_v4779 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4775 main_v4779 main_v4780 (mulf : (⟨S4x256x16, .f32⟩ : BufTy).Contents (Elt F) → (⟨S4x256x16, .f32⟩ : BufTy).Contents (Elt F) → (⟨S4x256x16, .f32⟩ : BufTy).Contents (Elt F)),
    nullary main_cst_476 (constant S_ .f32 0x00000000#32),
    binary main_v4780 main_cst_476 main_v4781 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_477 (constantI S_ 32 238#32),
    unary main_c_477 main_v4782 (broadcastInDim S1 ![] bcast_S_S1 : (⟨S_, .i32⟩ : BufTy).Contents (Elt F) → (⟨S1, .i32⟩ : BufTy).Contents (Elt F)),
    ternary main_v4763 main_v4782 main_v4781 main_v4783 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps238_ok : (stepOps238 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step238_val (V : Valuation τ sig (Elt Ideal)) :
    after (stepOps238 (F := Ideal)) V (no_index (Proc.devRef .tc main_v4775)) = stepH 238 (by decide) (V (Proc.devRef .tc main_arg0)) (V (Proc.devRef .tc main_v3)) (V (Proc.devRef .tc main_arg2)) (V (Proc.devRef .tc main_v4755))
    ∧ after (stepOps238 (F := Ideal)) V (no_index (Proc.devRef .tc main_v4783)) = stepY 238 (by decide) (V (Proc.devRef .tc main_arg3)) (stepH 238 (by decide) (V (Proc.devRef .tc main_arg0)) (V (Proc.devRef .tc main_v3)) (V (Proc.devRef .tc main_arg2)) (V (Proc.devRef .tc main_v4755))) (V (Proc.devRef .tc main_v4763)) := by
  simp only [stepOps238]
  after_results_simp
  first | exact ⟨rfl, rfl⟩ | fail "value"
/-- Step 239 of the loop: operations 5265 … 5286 of the program. -/
abbrev stepOps239 : List (HloOp τ sig (Elt F)) :=
  [ unary main_v3 main_v4784 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4775 main_v4784 main_v4785 (mulf : (⟨S4x256x16, .f32⟩ : BufTy).Contents (Elt F) → (⟨S4x256x16, .f32⟩ : BufTy).Contents (Elt F) → (⟨S4x256x16, .f32⟩ : BufTy).Contents (Elt F)),
    unary main_arg0 main_v4786 ((extractStridedSlice S4x1x256 ![0, 239, 0] · slices_S4x512x256_S4x1x256_0_239_0) : (⟨S4x512x256, .f32⟩ : BufTy).Contents (Elt F) → (⟨S4x1x256, .f32⟩ : BufTy).Contents (Elt F)),
    reshape main_v4786 main_v4787 rfl shapeCasts_S4x1x256_S4x256,
    unary main_v4787 main_v4788 (broadcastInDim S4x256x1 ![0, 1] bcast_S4x256_S4x256x1_0_1 : (⟨S4x256, .f32⟩ : BufTy).Contents (Elt F) → (⟨S4x256x1, .f32⟩ : BufTy).Contents (Elt F)),
    unary main_arg2 main_v4789 ((extractStridedSlice S4x1x16 ![0, 239, 0] · slices_S4x512x16_S4x1x16_0_239_0) : (⟨S4x512x16, .f32⟩ : BufTy).Contents (Elt F) → (⟨S4x1x16, .f32⟩ : BufTy).Contents (Elt F)),
    reshape main_v4789 main_v4790 rfl shapeCasts_S4x1x16_S4x16,
    unary main_v4790 main_v4791 (broadcastInDim S4x1x16 ![0, 2] bcast_S4x16_S4x1x16_0_2 : (⟨S4x16, .f32⟩ : BufTy).Contents (Elt F) → (⟨S4x1x16, .f32⟩ : BufTy).Contents (Elt F)),
    unary main_v4788 main_v4792 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4791 main_v4793 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4792 main_v4793 main_v4794 (mulf : (⟨S4x256x16, .f32⟩ : BufTy).Contents (Elt F) → (⟨S4x256x16, .f32⟩ : BufTy).Contents (Elt F) → (⟨S4x256x16, .f32⟩ : BufTy).Contents (Elt F)),
    binary main_v4785 main_v4794 main_v4795 (addf : (⟨S4x256x16, .f32⟩ : BufTy).Contents (Elt F) → (⟨S4x256x16, .f32⟩ : BufTy).Contents (Elt F) → (⟨S4x256x16, .f32⟩ : BufTy).Contents (Elt F)),
    unary main_arg3 main_v4796 ((extractStridedSlice S4x1x16 ![0, 239, 0] · slices_S4x512x16_S4x1x16_0_239_0) : (⟨S4x512x16, .f32⟩ : BufTy).Contents (Elt F) → (⟨S4x1x16, .f32⟩ : BufTy).Contents (Elt F)),
    reshape main_v4796 main_v4797 rfl shapeCasts_S4x1x16_S4x16,
    unary main_v4797 main_v4798 (broadcastInDim S4x1x16 ![0, 2] bcast_S4x16_S4x1x16_0_2 : (⟨S4x16, .f32⟩ : BufTy).Contents (Elt F) → (⟨S4x1x16, .f32⟩ : BufTy).Contents (Elt F)),
    unary main_v4798 main_v4799 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4795 main_v4799 main_v4800 (mulf : (⟨S4x256x16, .f32⟩ : BufTy).Contents (Elt F) → (⟨S4x256x16, .f32⟩ : BufTy).Contents (Elt F) → (⟨S4x256x16, .f32⟩ : BufTy).Contents (Elt F)),
    nullary main_cst_478 (constant S_ .f32 0x00000000#32),
    binary main_v4800 main_cst_478 main_v4801 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_479 (constantI S_ 32 239#32),
    unary main_c_479 main_v4802 (broadcastInDim S1 ![] bcast_S_S1 : (⟨S_, .i32⟩ : BufTy).Contents (Elt F) → (⟨S1, .i32⟩ : BufTy).Contents (Elt F)),
    ternary main_v4783 main_v4802 main_v4801 main_v4803 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps239_ok : (stepOps239 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step239_val (V : Valuation τ sig (Elt Ideal)) :
    after (stepOps239 (F := Ideal)) V (no_index (Proc.devRef .tc main_v4795)) = stepH 239 (by decide) (V (Proc.devRef .tc main_arg0)) (V (Proc.devRef .tc main_v3)) (V (Proc.devRef .tc main_arg2)) (V (Proc.devRef .tc main_v4775))
    ∧ after (stepOps239 (F := Ideal)) V (no_index (Proc.devRef .tc main_v4803)) = stepY 239 (by decide) (V (Proc.devRef .tc main_arg3)) (stepH 239 (by decide) (V (Proc.devRef .tc main_arg0)) (V (Proc.devRef .tc main_v3)) (V (Proc.devRef .tc main_arg2)) (V (Proc.devRef .tc main_v4775))) (V (Proc.devRef .tc main_v4783)) := by
  simp only [stepOps239]
  after_results_simp
  first | exact ⟨rfl, rfl⟩ | fail "value"

end Cert.ReferenceIdeal.RefRun

end
-- ==== Proof.RefTableStep15.lean ====
/-
  Steps 240 … 255 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 240 of the loop: operations 5287 … 5308 of the program. -/
abbrev stepOps240 : List (HloOp τ sig (Elt F)) :=
  [ unary main_v3 main_v4804 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4795 main_v4804 main_v4805 (mulf : (⟨S4x256x16, .f32⟩ : BufTy).Contents (Elt F) → (⟨S4x256x16, .f32⟩ : BufTy).Contents (Elt F) → (⟨S4x256x16, .f32⟩ : BufTy).Contents (Elt F)),
    unary main_arg0 main_v4806 ((extractStridedSlice S4x1x256 ![0, 240, 0] · slices_S4x512x256_S4x1x256_0_240_0) : (⟨S4x512x256, .f32⟩ : BufTy).Contents (Elt F) → (⟨S4x1x256, .f32⟩ : BufTy).Contents (Elt F)),
    reshape main_v4806 main_v4807 rfl shapeCasts_S4x1x256_S4x256,
    unary main_v4807 main_v4808 (broadcastInDim S4x256x1 ![0, 1] bcast_S4x256_S4x256x1_0_1 : (⟨S4x256, .f32⟩ : BufTy).Contents (Elt F) → (⟨S4x256x1, .f32⟩ : BufTy).Contents (Elt F)),
    unary main_arg2 main_v4809 ((extractStridedSlice S4x1x16 ![0, 240, 0] · slices_S4x512x16_S4x1x16_0_240_0) : (⟨S4x512x16, .f32⟩ : BufTy).Contents (Elt F) → (⟨S4x1x16, .f32⟩ : BufTy).Contents (Elt F)),
    reshape main_v4809 main_v4810 rfl shapeCasts_S4x1x16_S4x16,
    unary main_v4810 main_v4811 (broadcastInDim S4x1x16 ![0, 2] bcast_S4x16_S4x1x16_0_2 : (⟨S4x16, .f32⟩ : BufTy).Contents (Elt F) → (⟨S4x1x16, .f32⟩ : BufTy).Contents (Elt F)),
    unary main_v4808 main_v4812 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4811 main_v4813 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4812 main_v4813 main_v4814 (mulf : (⟨S4x256x16, .f32⟩ : BufTy).Contents (Elt F) → (⟨S4x256x16, .f32⟩ : BufTy).Contents (Elt F) → (⟨S4x256x16, .f32⟩ : BufTy).Contents (Elt F)),
    binary main_v4805 main_v4814 main_v4815 (addf : (⟨S4x256x16, .f32⟩ : BufTy).Contents (Elt F) → (⟨S4x256x16, .f32⟩ : BufTy).Contents (Elt F) → (⟨S4x256x16, .f32⟩ : BufTy).Contents (Elt F)),
    unary main_arg3 main_v4816 ((extractStridedSlice S4x1x16 ![0, 240, 0] · slices_S4x512x16_S4x1x16_0_240_0) : (⟨S4x512x16, .f32⟩ : BufTy).Contents (Elt F) → (⟨S4x1x16, .f32⟩ : BufTy).Contents (Elt F)),
    reshape main_v4816 main_v4817 rfl shapeCasts_S4x1x16_S4x16,
    unary main_v4817 main_v4818 (broadcastInDim S4x1x16 ![0, 2] bcast_S4x16_S4x1x16_0_2 : (⟨S4x16, .f32⟩ : BufTy).Contents (Elt F) → (⟨S4x1x16, .f32⟩ : BufTy).Contents (Elt F)),
    unary main_v4818 main_v4819 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4815 main_v4819 main_v4820 (mulf : (⟨S4x256x16, .f32⟩ : BufTy).Contents (Elt F) → (⟨S4x256x16, .f32⟩ : BufTy).Contents (Elt F) → (⟨S4x256x16, .f32⟩ : BufTy).Contents (Elt F)),
    nullary main_cst_480 (constant S_ .f32 0x00000000#32),
    binary main_v4820 main_cst_480 main_v4821 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_481 (constantI S_ 32 240#32),
    unary main_c_481 main_v4822 (broadcastInDim S1 ![] bcast_S_S1 : (⟨S_, .i32⟩ : BufTy).Contents (Elt F) → (⟨S1, .i32⟩ : BufTy).Contents (Elt F)),
    ternary main_v4803 main_v4822 main_v4821 main_v4823 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps240_ok : (stepOps240 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step240_val (V : Valuation τ sig (Elt Ideal)) :
    after (stepOps240 (F := Ideal)) V (no_index (Proc.devRef .tc main_v4815)) = stepH 240 (by decide) (V (Proc.devRef .tc main_arg0)) (V (Proc.devRef .tc main_v3)) (V (Proc.devRef .tc main_arg2)) (V (Proc.devRef .tc main_v4795))
    ∧ after (stepOps240 (F := Ideal)) V (no_index (Proc.devRef .tc main_v4823)) = stepY 240 (by decide) (V (Proc.devRef .tc main_arg3)) (stepH 240 (by decide) (V (Proc.devRef .tc main_arg0)) (V (Proc.devRef .tc main_v3)) (V (Proc.devRef .tc main_arg2)) (V (Proc.devRef .tc main_v4795))) (V (Proc.devRef .tc main_v4803)) := by
  simp only [stepOps240]
  after_results_simp
  first | exact ⟨rfl, rfl⟩ | fail "value"
/-- Step 241 of the loop: operations 5309 … 5330 of the program. -/
abbrev stepOps241 : List (HloOp τ sig (Elt F)) :=
  [ unary main_v3 main_v4824 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4815 main_v4824 main_v4825 (mulf : (⟨S4x256x16, .f32⟩ : BufTy).Contents (Elt F) → (⟨S4x256x16, .f32⟩ : BufTy).Contents (Elt F) → (⟨S4x256x16, .f32⟩ : BufTy).Contents (Elt F)),
    unary main_arg0 main_v4826 ((extractStridedSlice S4x1x256 ![0, 241, 0] · slices_S4x512x256_S4x1x256_0_241_0) : (⟨S4x512x256, .f32⟩ : BufTy).Contents (Elt F) → (⟨S4x1x256, .f32⟩ : BufTy).Contents (Elt F)),
    reshape main_v4826 main_v4827 rfl shapeCasts_S4x1x256_S4x256,
    unary main_v4827 main_v4828 (broadcastInDim S4x256x1 ![0, 1] bcast_S4x256_S4x256x1_0_1 : (⟨S4x256, .f32⟩ : BufTy).Contents (Elt F) → (⟨S4x256x1, .f32⟩ : BufTy).Contents (Elt F)),
    unary main_arg2 main_v4829 ((extractStridedSlice S4x1x16 ![0, 241, 0] · slices_S4x512x16_S4x1x16_0_241_0) : (⟨S4x512x16, .f32⟩ : BufTy).Contents (Elt F) → (⟨S4x1x16, .f32⟩ : BufTy).Contents (Elt F)),
    reshape main_v4829 main_v4830 rfl shapeCasts_S4x1x16_S4x16,
    unary main_v4830 main_v4831 (broadcastInDim S4x1x16 ![0, 2] bcast_S4x16_S4x1x16_0_2 : (⟨S4x16, .f32⟩ : BufTy).Contents (Elt F) → (⟨S4x1x16, .f32⟩ : BufTy).Contents (Elt F)),
    unary main_v4828 main_v4832 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4831 main_v4833 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4832 main_v4833 main_v4834 (mulf : (⟨S4x256x16, .f32⟩ : BufTy).Contents (Elt F) → (⟨S4x256x16, .f32⟩ : BufTy).Contents (Elt F) → (⟨S4x256x16, .f32⟩ : BufTy).Contents (Elt F)),
    binary main_v4825 main_v4834 main_v4835 (addf : (⟨S4x256x16, .f32⟩ : BufTy).Contents (Elt F) → (⟨S4x256x16, .f32⟩ : BufTy).Contents (Elt F) → (⟨S4x256x16, .f32⟩ : BufTy).Contents (Elt F)),
    unary main_arg3 main_v4836 ((extractStridedSlice S4x1x16 ![0, 241, 0] · slices_S4x512x16_S4x1x16_0_241_0) : (⟨S4x512x16, .f32⟩ : BufTy).Contents (Elt F) → (⟨S4x1x16, .f32⟩ : BufTy).Contents (Elt F)),
    reshape main_v4836 main_v4837 rfl shapeCasts_S4x1x16_S4x16,
    unary main_v4837 main_v4838 (broadcastInDim S4x1x16 ![0, 2] bcast_S4x16_S4x1x16_0_2 : (⟨S4x16, .f32⟩ : BufTy).Contents (Elt F) → (⟨S4x1x16, .f32⟩ : BufTy).Contents (Elt F)),
    unary main_v4838 main_v4839 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4835 main_v4839 main_v4840 (mulf : (⟨S4x256x16, .f32⟩ : BufTy).Contents (Elt F) → (⟨S4x256x16, .f32⟩ : BufTy).Contents (Elt F) → (⟨S4x256x16, .f32⟩ : BufTy).Contents (Elt F)),
    nullary main_cst_482 (constant S_ .f32 0x00000000#32),
    binary main_v4840 main_cst_482 main_v4841 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_483 (constantI S_ 32 241#32),
    unary main_c_483 main_v4842 (broadcastInDim S1 ![] bcast_S_S1 : (⟨S_, .i32⟩ : BufTy).Contents (Elt F) → (⟨S1, .i32⟩ : BufTy).Contents (Elt F)),
    ternary main_v4823 main_v4842 main_v4841 main_v4843 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps241_ok : (stepOps241 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step241_val (V : Valuation τ sig (Elt Ideal)) :
    after (stepOps241 (F := Ideal)) V (no_index (Proc.devRef .tc main_v4835)) = stepH 241 (by decide) (V (Proc.devRef .tc main_arg0)) (V (Proc.devRef .tc main_v3)) (V (Proc.devRef .tc main_arg2)) (V (Proc.devRef .tc main_v4815))
    ∧ after (stepOps241 (F := Ideal)) V (no_index (Proc.devRef .tc main_v4843)) = stepY 241 (by decide) (V (Proc.devRef .tc main_arg3)) (stepH 241 (by decide) (V (Proc.devRef .tc main_arg0)) (V (Proc.devRef .tc main_v3)) (V (Proc.devRef .tc main_arg2)) (V (Proc.devRef .tc main_v4815))) (V (Proc.devRef .tc main_v4823)) := by
  simp only [stepOps241]
  after_results_simp
  first | exact ⟨rfl, rfl⟩ | fail "value"
/-- Step 242 of the loop: operations 5331 … 5352 of the program. -/
abbrev stepOps242 : List (HloOp τ sig (Elt F)) :=
  [ unary main_v3 main_v4844 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4835 main_v4844 main_v4845 (mulf : (⟨S4x256x16, .f32⟩ : BufTy).Contents (Elt F) → (⟨S4x256x16, .f32⟩ : BufTy).Contents (Elt F) → (⟨S4x256x16, .f32⟩ : BufTy).Contents (Elt F)),
    unary main_arg0 main_v4846 ((extractStridedSlice S4x1x256 ![0, 242, 0] · slices_S4x512x256_S4x1x256_0_242_0) : (⟨S4x512x256, .f32⟩ : BufTy).Contents (Elt F) → (⟨S4x1x256, .f32⟩ : BufTy).Contents (Elt F)),
    reshape main_v4846 main_v4847 rfl shapeCasts_S4x1x256_S4x256,
    unary main_v4847 main_v4848 (broadcastInDim S4x256x1 ![0, 1] bcast_S4x256_S4x256x1_0_1 : (⟨S4x256, .f32⟩ : BufTy).Contents (Elt F) → (⟨S4x256x1, .f32⟩ : BufTy).Contents (Elt F)),
    unary main_arg2 main_v4849 ((extractStridedSlice S4x1x16 ![0, 242, 0] · slices_S4x512x16_S4x1x16_0_242_0) : (⟨S4x512x16, .f32⟩ : BufTy).Contents (Elt F) → (⟨S4x1x16, .f32⟩ : BufTy).Contents (Elt F)),
    reshape main_v4849 main_v4850 rfl shapeCasts_S4x1x16_S4x16,
    unary main_v4850 main_v4851 (broadcastInDim S4x1x16 ![0, 2] bcast_S4x16_S4x1x16_0_2 : (⟨S4x16, .f32⟩ : BufTy).Contents (Elt F) → (⟨S4x1x16, .f32⟩ : BufTy).Contents (Elt F)),
    unary main_v4848 main_v4852 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4851 main_v4853 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4852 main_v4853 main_v4854 (mulf : (⟨S4x256x16, .f32⟩ : BufTy).Contents (Elt F) → (⟨S4x256x16, .f32⟩ : BufTy).Contents (Elt F) → (⟨S4x256x16, .f32⟩ : BufTy).Contents (Elt F)),
    binary main_v4845 main_v4854 main_v4855 (addf : (⟨S4x256x16, .f32⟩ : BufTy).Contents (Elt F) → (⟨S4x256x16, .f32⟩ : BufTy).Contents (Elt F) → (⟨S4x256x16, .f32⟩ : BufTy).Contents (Elt F)),
    unary main_arg3 main_v4856 ((extractStridedSlice S4x1x16 ![0, 242, 0] · slices_S4x512x16_S4x1x16_0_242_0) : (⟨S4x512x16, .f32⟩ : BufTy).Contents (Elt F) → (⟨S4x1x16, .f32⟩ : BufTy).Contents (Elt F)),
    reshape main_v4856 main_v4857 rfl shapeCasts_S4x1x16_S4x16,
    unary main_v4857 main_v4858 (broadcastInDim S4x1x16 ![0, 2] bcast_S4x16_S4x1x16_0_2 : (⟨S4x16, .f32⟩ : BufTy).Contents (Elt F) → (⟨S4x1x16, .f32⟩ : BufTy).Contents (Elt F)),
    unary main_v4858 main_v4859 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4855 main_v4859 main_v4860 (mulf : (⟨S4x256x16, .f32⟩ : BufTy).Contents (Elt F) → (⟨S4x256x16, .f32⟩ : BufTy).Contents (Elt F) → (⟨S4x256x16, .f32⟩ : BufTy).Contents (Elt F)),
    nullary main_cst_484 (constant S_ .f32 0x00000000#32),
    binary main_v4860 main_cst_484 main_v4861 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_485 (constantI S_ 32 242#32),
    unary main_c_485 main_v4862 (broadcastInDim S1 ![] bcast_S_S1 : (⟨S_, .i32⟩ : BufTy).Contents (Elt F) → (⟨S1, .i32⟩ : BufTy).Contents (Elt F)),
    ternary main_v4843 main_v4862 main_v4861 main_v4863 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps242_ok : (stepOps242 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step242_val (V : Valuation τ sig (Elt Ideal)) :
    after (stepOps242 (F := Ideal)) V (no_index (Proc.devRef .tc main_v4855)) = stepH 242 (by decide) (V (Proc.devRef .tc main_arg0)) (V (Proc.devRef .tc main_v3)) (V (Proc.devRef .tc main_arg2)) (V (Proc.devRef .tc main_v4835))
    ∧ after (stepOps242 (F := Ideal)) V (no_index (Proc.devRef .tc main_v4863)) = stepY 242 (by decide) (V (Proc.devRef .tc main_arg3)) (stepH 242 (by decide) (V (Proc.devRef .tc main_arg0)) (V (Proc.devRef .tc main_v3)) (V (Proc.devRef .tc main_arg2)) (V (Proc.devRef .tc main_v4835))) (V (Proc.devRef .tc main_v4843)) := by
  simp only [stepOps242]
  after_results_simp
  first | exact ⟨rfl, rfl⟩ | fail "value"
/-- Step 243 of the loop: operations 5353 … 5374 of the program. -/
abbrev stepOps243 : List (HloOp τ sig (Elt F)) :=
  [ unary main_v3 main_v4864 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4855 main_v4864 main_v4865 (mulf : (⟨S4x256x16, .f32⟩ : BufTy).Contents (Elt F) → (⟨S4x256x16, .f32⟩ : BufTy).Contents (Elt F) → (⟨S4x256x16, .f32⟩ : BufTy).Contents (Elt F)),
    unary main_arg0 main_v4866 ((extractStridedSlice S4x1x256 ![0, 243, 0] · slices_S4x512x256_S4x1x256_0_243_0) : (⟨S4x512x256, .f32⟩ : BufTy).Contents (Elt F) → (⟨S4x1x256, .f32⟩ : BufTy).Contents (Elt F)),
    reshape main_v4866 main_v4867 rfl shapeCasts_S4x1x256_S4x256,
    unary main_v4867 main_v4868 (broadcastInDim S4x256x1 ![0, 1] bcast_S4x256_S4x256x1_0_1 : (⟨S4x256, .f32⟩ : BufTy).Contents (Elt F) → (⟨S4x256x1, .f32⟩ : BufTy).Contents (Elt F)),
    unary main_arg2 main_v4869 ((extractStridedSlice S4x1x16 ![0, 243, 0] · slices_S4x512x16_S4x1x16_0_243_0) : (⟨S4x512x16, .f32⟩ : BufTy).Contents (Elt F) → (⟨S4x1x16, .f32⟩ : BufTy).Contents (Elt F)),
    reshape main_v4869 main_v4870 rfl shapeCasts_S4x1x16_S4x16,
    unary main_v4870 main_v4871 (broadcastInDim S4x1x16 ![0, 2] bcast_S4x16_S4x1x16_0_2 : (⟨S4x16, .f32⟩ : BufTy).Contents (Elt F) → (⟨S4x1x16, .f32⟩ : BufTy).Contents (Elt F)),
    unary main_v4868 main_v4872 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4871 main_v4873 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4872 main_v4873 main_v4874 (mulf : (⟨S4x256x16, .f32⟩ : BufTy).Contents (Elt F) → (⟨S4x256x16, .f32⟩ : BufTy).Contents (Elt F) → (⟨S4x256x16, .f32⟩ : BufTy).Contents (Elt F)),
    binary main_v4865 main_v4874 main_v4875 (addf : (⟨S4x256x16, .f32⟩ : BufTy).Contents (Elt F) → (⟨S4x256x16, .f32⟩ : BufTy).Contents (Elt F) → (⟨S4x256x16, .f32⟩ : BufTy).Contents (Elt F)),
    unary main_arg3 main_v4876 ((extractStridedSlice S4x1x16 ![0, 243, 0] · slices_S4x512x16_S4x1x16_0_243_0) : (⟨S4x512x16, .f32⟩ : BufTy).Contents (Elt F) → (⟨S4x1x16, .f32⟩ : BufTy).Contents (Elt F)),
    reshape main_v4876 main_v4877 rfl shapeCasts_S4x1x16_S4x16,
    unary main_v4877 main_v4878 (broadcastInDim S4x1x16 ![0, 2] bcast_S4x16_S4x1x16_0_2 : (⟨S4x16, .f32⟩ : BufTy).Contents (Elt F) → (⟨S4x1x16, .f32⟩ : BufTy).Contents (Elt F)),
    unary main_v4878 main_v4879 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4875 main_v4879 main_v4880 (mulf : (⟨S4x256x16, .f32⟩ : BufTy).Contents (Elt F) → (⟨S4x256x16, .f32⟩ : BufTy).Contents (Elt F) → (⟨S4x256x16, .f32⟩ : BufTy).Contents (Elt F)),
    nullary main_cst_486 (constant S_ .f32 0x00000000#32),
    binary main_v4880 main_cst_486 main_v4881 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_487 (constantI S_ 32 243#32),
    unary main_c_487 main_v4882 (broadcastInDim S1 ![] bcast_S_S1 : (⟨S_, .i32⟩ : BufTy).Contents (Elt F) → (⟨S1, .i32⟩ : BufTy).Contents (Elt F)),
    ternary main_v4863 main_v4882 main_v4881 main_v4883 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps243_ok : (stepOps243 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step243_val (V : Valuation τ sig (Elt Ideal)) :
    after (stepOps243 (F := Ideal)) V (no_index (Proc.devRef .tc main_v4875)) = stepH 243 (by decide) (V (Proc.devRef .tc main_arg0)) (V (Proc.devRef .tc main_v3)) (V (Proc.devRef .tc main_arg2)) (V (Proc.devRef .tc main_v4855))
    ∧ after (stepOps243 (F := Ideal)) V (no_index (Proc.devRef .tc main_v4883)) = stepY 243 (by decide) (V (Proc.devRef .tc main_arg3)) (stepH 243 (by decide) (V (Proc.devRef .tc main_arg0)) (V (Proc.devRef .tc main_v3)) (V (Proc.devRef .tc main_arg2)) (V (Proc.devRef .tc main_v4855))) (V (Proc.devRef .tc main_v4863)) := by
  simp only [stepOps243]
  after_results_simp
  first | exact ⟨rfl, rfl⟩ | fail "value"
/-- Step 244 of the loop: operations 5375 … 5396 of the program. -/
abbrev stepOps244 : List (HloOp τ sig (Elt F)) :=
  [ unary main_v3 main_v4884 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4875 main_v4884 main_v4885 (mulf : (⟨S4x256x16, .f32⟩ : BufTy).Contents (Elt F) → (⟨S4x256x16, .f32⟩ : BufTy).Contents (Elt F) → (⟨S4x256x16, .f32⟩ : BufTy).Contents (Elt F)),
    unary main_arg0 main_v4886 ((extractStridedSlice S4x1x256 ![0, 244, 0] · slices_S4x512x256_S4x1x256_0_244_0) : (⟨S4x512x256, .f32⟩ : BufTy).Contents (Elt F) → (⟨S4x1x256, .f32⟩ : BufTy).Contents (Elt F)),
    reshape main_v4886 main_v4887 rfl shapeCasts_S4x1x256_S4x256,
    unary main_v4887 main_v4888 (broadcastInDim S4x256x1 ![0, 1] bcast_S4x256_S4x256x1_0_1 : (⟨S4x256, .f32⟩ : BufTy).Contents (Elt F) → (⟨S4x256x1, .f32⟩ : BufTy).Contents (Elt F)),
    unary main_arg2 main_v4889 ((extractStridedSlice S4x1x16 ![0, 244, 0] · slices_S4x512x16_S4x1x16_0_244_0) : (⟨S4x512x16, .f32⟩ : BufTy).Contents (Elt F) → (⟨S4x1x16, .f32⟩ : BufTy).Contents (Elt F)),
    reshape main_v4889 main_v4890 rfl shapeCasts_S4x1x16_S4x16,
    unary main_v4890 main_v4891 (broadcastInDim S4x1x16 ![0, 2] bcast_S4x16_S4x1x16_0_2 : (⟨S4x16, .f32⟩ : BufTy).Contents (Elt F) → (⟨S4x1x16, .f32⟩ : BufTy).Contents (Elt F)),
    unary main_v4888 main_v4892 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4891 main_v4893 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4892 main_v4893 main_v4894 (mulf : (⟨S4x256x16, .f32⟩ : BufTy).Contents (Elt F) → (⟨S4x256x16, .f32⟩ : BufTy).Contents (Elt F) → (⟨S4x256x16, .f32⟩ : BufTy).Contents (Elt F)),
    binary main_v4885 main_v4894 main_v4895 (addf : (⟨S4x256x16, .f32⟩ : BufTy).Contents (Elt F) → (⟨S4x256x16, .f32⟩ : BufTy).Contents (Elt F) → (⟨S4x256x16, .f32⟩ : BufTy).Contents (Elt F)),
    unary main_arg3 main_v4896 ((extractStridedSlice S4x1x16 ![0, 244, 0] · slices_S4x512x16_S4x1x16_0_244_0) : (⟨S4x512x16, .f32⟩ : BufTy).Contents (Elt F) → (⟨S4x1x16, .f32⟩ : BufTy).Contents (Elt F)),
    reshape main_v4896 main_v4897 rfl shapeCasts_S4x1x16_S4x16,
    unary main_v4897 main_v4898 (broadcastInDim S4x1x16 ![0, 2] bcast_S4x16_S4x1x16_0_2 : (⟨S4x16, .f32⟩ : BufTy).Contents (Elt F) → (⟨S4x1x16, .f32⟩ : BufTy).Contents (Elt F)),
    unary main_v4898 main_v4899 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4895 main_v4899 main_v4900 (mulf : (⟨S4x256x16, .f32⟩ : BufTy).Contents (Elt F) → (⟨S4x256x16, .f32⟩ : BufTy).Contents (Elt F) → (⟨S4x256x16, .f32⟩ : BufTy).Contents (Elt F)),
    nullary main_cst_488 (constant S_ .f32 0x00000000#32),
    binary main_v4900 main_cst_488 main_v4901 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_489 (constantI S_ 32 244#32),
    unary main_c_489 main_v4902 (broadcastInDim S1 ![] bcast_S_S1 : (⟨S_, .i32⟩ : BufTy).Contents (Elt F) → (⟨S1, .i32⟩ : BufTy).Contents (Elt F)),
    ternary main_v4883 main_v4902 main_v4901 main_v4903 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps244_ok : (stepOps244 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step244_val (V : Valuation τ sig (Elt Ideal)) :
    after (stepOps244 (F := Ideal)) V (no_index (Proc.devRef .tc main_v4895)) = stepH 244 (by decide) (V (Proc.devRef .tc main_arg0)) (V (Proc.devRef .tc main_v3)) (V (Proc.devRef .tc main_arg2)) (V (Proc.devRef .tc main_v4875))
    ∧ after (stepOps244 (F := Ideal)) V (no_index (Proc.devRef .tc main_v4903)) = stepY 244 (by decide) (V (Proc.devRef .tc main_arg3)) (stepH 244 (by decide) (V (Proc.devRef .tc main_arg0)) (V (Proc.devRef .tc main_v3)) (V (Proc.devRef .tc main_arg2)) (V (Proc.devRef .tc main_v4875))) (V (Proc.devRef .tc main_v4883)) := by
  simp only [stepOps244]
  after_results_simp
  first | exact ⟨rfl, rfl⟩ | fail "value"
/-- Step 245 of the loop: operations 5397 … 5418 of the program. -/
abbrev stepOps245 : List (HloOp τ sig (Elt F)) :=
  [ unary main_v3 main_v4904 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4895 main_v4904 main_v4905 (mulf : (⟨S4x256x16, .f32⟩ : BufTy).Contents (Elt F) → (⟨S4x256x16, .f32⟩ : BufTy).Contents (Elt F) → (⟨S4x256x16, .f32⟩ : BufTy).Contents (Elt F)),
    unary main_arg0 main_v4906 ((extractStridedSlice S4x1x256 ![0, 245, 0] · slices_S4x512x256_S4x1x256_0_245_0) : (⟨S4x512x256, .f32⟩ : BufTy).Contents (Elt F) → (⟨S4x1x256, .f32⟩ : BufTy).Contents (Elt F)),
    reshape main_v4906 main_v4907 rfl shapeCasts_S4x1x256_S4x256,
    unary main_v4907 main_v4908 (broadcastInDim S4x256x1 ![0, 1] bcast_S4x256_S4x256x1_0_1 : (⟨S4x256, .f32⟩ : BufTy).Contents (Elt F) → (⟨S4x256x1, .f32⟩ : BufTy).Contents (Elt F)),
    unary main_arg2 main_v4909 ((extractStridedSlice S4x1x16 ![0, 245, 0] · slices_S4x512x16_S4x1x16_0_245_0) : (⟨S4x512x16, .f32⟩ : BufTy).Contents (Elt F) → (⟨S4x1x16, .f32⟩ : BufTy).Contents (Elt F)),
    reshape main_v4909 main_v4910 rfl shapeCasts_S4x1x16_S4x16,
    unary main_v4910 main_v4911 (broadcastInDim S4x1x16 ![0, 2] bcast_S4x16_S4x1x16_0_2 : (⟨S4x16, .f32⟩ : BufTy).Contents (Elt F) → (⟨S4x1x16, .f32⟩ : BufTy).Contents (Elt F)),
    unary main_v4908 main_v4912 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4911 main_v4913 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4912 main_v4913 main_v4914 (mulf : (⟨S4x256x16, .f32⟩ : BufTy).Contents (Elt F) → (⟨S4x256x16, .f32⟩ : BufTy).Contents (Elt F) → (⟨S4x256x16, .f32⟩ : BufTy).Contents (Elt F)),
    binary main_v4905 main_v4914 main_v4915 (addf : (⟨S4x256x16, .f32⟩ : BufTy).Contents (Elt F) → (⟨S4x256x16, .f32⟩ : BufTy).Contents (Elt F) → (⟨S4x256x16, .f32⟩ : BufTy).Contents (Elt F)),
    unary main_arg3 main_v4916 ((extractStridedSlice S4x1x16 ![0, 245, 0] · slices_S4x512x16_S4x1x16_0_245_0) : (⟨S4x512x16, .f32⟩ : BufTy).Contents (Elt F) → (⟨S4x1x16, .f32⟩ : BufTy).Contents (Elt F)),
    reshape main_v4916 main_v4917 rfl shapeCasts_S4x1x16_S4x16,
    unary main_v4917 main_v4918 (broadcastInDim S4x1x16 ![0, 2] bcast_S4x16_S4x1x16_0_2 : (⟨S4x16, .f32⟩ : BufTy).Contents (Elt F) → (⟨S4x1x16, .f32⟩ : BufTy).Contents (Elt F)),
    unary main_v4918 main_v4919 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4915 main_v4919 main_v4920 (mulf : (⟨S4x256x16, .f32⟩ : BufTy).Contents (Elt F) → (⟨S4x256x16, .f32⟩ : BufTy).Contents (Elt F) → (⟨S4x256x16, .f32⟩ : BufTy).Contents (Elt F)),
    nullary main_cst_490 (constant S_ .f32 0x00000000#32),
    binary main_v4920 main_cst_490 main_v4921 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_491 (constantI S_ 32 245#32),
    unary main_c_491 main_v4922 (broadcastInDim S1 ![] bcast_S_S1 : (⟨S_, .i32⟩ : BufTy).Contents (Elt F) → (⟨S1, .i32⟩ : BufTy).Contents (Elt F)),
    ternary main_v4903 main_v4922 main_v4921 main_v4923 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps245_ok : (stepOps245 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step245_val (V : Valuation τ sig (Elt Ideal)) :
    after (stepOps245 (F := Ideal)) V (no_index (Proc.devRef .tc main_v4915)) = stepH 245 (by decide) (V (Proc.devRef .tc main_arg0)) (V (Proc.devRef .tc main_v3)) (V (Proc.devRef .tc main_arg2)) (V (Proc.devRef .tc main_v4895))
    ∧ after (stepOps245 (F := Ideal)) V (no_index (Proc.devRef .tc main_v4923)) = stepY 245 (by decide) (V (Proc.devRef .tc main_arg3)) (stepH 245 (by decide) (V (Proc.devRef .tc main_arg0)) (V (Proc.devRef .tc main_v3)) (V (Proc.devRef .tc main_arg2)) (V (Proc.devRef .tc main_v4895))) (V (Proc.devRef .tc main_v4903)) := by
  simp only [stepOps245]
  after_results_simp
  first | exact ⟨rfl, rfl⟩ | fail "value"
/-- Step 246 of the loop: operations 5419 … 5440 of the program. -/
abbrev stepOps246 : List (HloOp τ sig (Elt F)) :=
  [ unary main_v3 main_v4924 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4915 main_v4924 main_v4925 (mulf : (⟨S4x256x16, .f32⟩ : BufTy).Contents (Elt F) → (⟨S4x256x16, .f32⟩ : BufTy).Contents (Elt F) → (⟨S4x256x16, .f32⟩ : BufTy).Contents (Elt F)),
    unary main_arg0 main_v4926 ((extractStridedSlice S4x1x256 ![0, 246, 0] · slices_S4x512x256_S4x1x256_0_246_0) : (⟨S4x512x256, .f32⟩ : BufTy).Contents (Elt F) → (⟨S4x1x256, .f32⟩ : BufTy).Contents (Elt F)),
    reshape main_v4926 main_v4927 rfl shapeCasts_S4x1x256_S4x256,
    unary main_v4927 main_v4928 (broadcastInDim S4x256x1 ![0, 1] bcast_S4x256_S4x256x1_0_1 : (⟨S4x256, .f32⟩ : BufTy).Contents (Elt F) → (⟨S4x256x1, .f32⟩ : BufTy).Contents (Elt F)),
    unary main_arg2 main_v4929 ((extractStridedSlice S4x1x16 ![0, 246, 0] · slices_S4x512x16_S4x1x16_0_246_0) : (⟨S4x512x16, .f32⟩ : BufTy).Contents (Elt F) → (⟨S4x1x16, .f32⟩ : BufTy).Contents (Elt F)),
    reshape main_v4929 main_v4930 rfl shapeCasts_S4x1x16_S4x16,
    unary main_v4930 main_v4931 (broadcastInDim S4x1x16 ![0, 2] bcast_S4x16_S4x1x16_0_2 : (⟨S4x16, .f32⟩ : BufTy).Contents (Elt F) → (⟨S4x1x16, .f32⟩ : BufTy).Contents (Elt F)),
    unary main_v4928 main_v4932 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4931 main_v4933 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4932 main_v4933 main_v4934 (mulf : (⟨S4x256x16, .f32⟩ : BufTy).Contents (Elt F) → (⟨S4x256x16, .f32⟩ : BufTy).Contents (Elt F) → (⟨S4x256x16, .f32⟩ : BufTy).Contents (Elt F)),
    binary main_v4925 main_v4934 main_v4935 (addf : (⟨S4x256x16, .f32⟩ : BufTy).Contents (Elt F) → (⟨S4x256x16, .f32⟩ : BufTy).Contents (Elt F) → (⟨S4x256x16, .f32⟩ : BufTy).Contents (Elt F)),
    unary main_arg3 main_v4936 ((extractStridedSlice S4x1x16 ![0, 246, 0] · slices_S4x512x16_S4x1x16_0_246_0) : (⟨S4x512x16, .f32⟩ : BufTy).Contents (Elt F) → (⟨S4x1x16, .f32⟩ : BufTy).Contents (Elt F)),
    reshape main_v4936 main_v4937 rfl shapeCasts_S4x1x16_S4x16,
    unary main_v4937 main_v4938 (broadcastInDim S4x1x16 ![0, 2] bcast_S4x16_S4x1x16_0_2 : (⟨S4x16, .f32⟩ : BufTy).Contents (Elt F) → (⟨S4x1x16, .f32⟩ : BufTy).Contents (Elt F)),
    unary main_v4938 main_v4939 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4935 main_v4939 main_v4940 (mulf : (⟨S4x256x16, .f32⟩ : BufTy).Contents (Elt F) → (⟨S4x256x16, .f32⟩ : BufTy).Contents (Elt F) → (⟨S4x256x16, .f32⟩ : BufTy).Contents (Elt F)),
    nullary main_cst_492 (constant S_ .f32 0x00000000#32),
    binary main_v4940 main_cst_492 main_v4941 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_493 (constantI S_ 32 246#32),
    unary main_c_493 main_v4942 (broadcastInDim S1 ![] bcast_S_S1 : (⟨S_, .i32⟩ : BufTy).Contents (Elt F) → (⟨S1, .i32⟩ : BufTy).Contents (Elt F)),
    ternary main_v4923 main_v4942 main_v4941 main_v4943 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps246_ok : (stepOps246 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step246_val (V : Valuation τ sig (Elt Ideal)) :
    after (stepOps246 (F := Ideal)) V (no_index (Proc.devRef .tc main_v4935)) = stepH 246 (by decide) (V (Proc.devRef .tc main_arg0)) (V (Proc.devRef .tc main_v3)) (V (Proc.devRef .tc main_arg2)) (V (Proc.devRef .tc main_v4915))
    ∧ after (stepOps246 (F := Ideal)) V (no_index (Proc.devRef .tc main_v4943)) = stepY 246 (by decide) (V (Proc.devRef .tc main_arg3)) (stepH 246 (by decide) (V (Proc.devRef .tc main_arg0)) (V (Proc.devRef .tc main_v3)) (V (Proc.devRef .tc main_arg2)) (V (Proc.devRef .tc main_v4915))) (V (Proc.devRef .tc main_v4923)) := by
  simp only [stepOps246]
  after_results_simp
  first | exact ⟨rfl, rfl⟩ | fail "value"
/-- Step 247 of the loop: operations 5441 … 5462 of the program. -/
abbrev stepOps247 : List (HloOp τ sig (Elt F)) :=
  [ unary main_v3 main_v4944 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4935 main_v4944 main_v4945 (mulf : (⟨S4x256x16, .f32⟩ : BufTy).Contents (Elt F) → (⟨S4x256x16, .f32⟩ : BufTy).Contents (Elt F) → (⟨S4x256x16, .f32⟩ : BufTy).Contents (Elt F)),
    unary main_arg0 main_v4946 ((extractStridedSlice S4x1x256 ![0, 247, 0] · slices_S4x512x256_S4x1x256_0_247_0) : (⟨S4x512x256, .f32⟩ : BufTy).Contents (Elt F) → (⟨S4x1x256, .f32⟩ : BufTy).Contents (Elt F)),
    reshape main_v4946 main_v4947 rfl shapeCasts_S4x1x256_S4x256,
    unary main_v4947 main_v4948 (broadcastInDim S4x256x1 ![0, 1] bcast_S4x256_S4x256x1_0_1 : (⟨S4x256, .f32⟩ : BufTy).Contents (Elt F) → (⟨S4x256x1, .f32⟩ : BufTy).Contents (Elt F)),
    unary main_arg2 main_v4949 ((extractStridedSlice S4x1x16 ![0, 247, 0] · slices_S4x512x16_S4x1x16_0_247_0) : (⟨S4x512x16, .f32⟩ : BufTy).Contents (Elt F) → (⟨S4x1x16, .f32⟩ : BufTy).Contents (Elt F)),
    reshape main_v4949 main_v4950 rfl shapeCasts_S4x1x16_S4x16,
    unary main_v4950 main_v4951 (broadcastInDim S4x1x16 ![0, 2] bcast_S4x16_S4x1x16_0_2 : (⟨S4x16, .f32⟩ : BufTy).Contents (Elt F) → (⟨S4x1x16, .f32⟩ : BufTy).Contents (Elt F)),
    unary main_v4948 main_v4952 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4951 main_v4953 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4952 main_v4953 main_v4954 (mulf : (⟨S4x256x16, .f32⟩ : BufTy).Contents (Elt F) → (⟨S4x256x16, .f32⟩ : BufTy).Contents (Elt F) → (⟨S4x256x16, .f32⟩ : BufTy).Contents (Elt F)),
    binary main_v4945 main_v4954 main_v4955 (addf : (⟨S4x256x16, .f32⟩ : BufTy).Contents (Elt F) → (⟨S4x256x16, .f32⟩ : BufTy).Contents (Elt F) → (⟨S4x256x16, .f32⟩ : BufTy).Contents (Elt F)),
    unary main_arg3 main_v4956 ((extractStridedSlice S4x1x16 ![0, 247, 0] · slices_S4x512x16_S4x1x16_0_247_0) : (⟨S4x512x16, .f32⟩ : BufTy).Contents (Elt F) → (⟨S4x1x16, .f32⟩ : BufTy).Contents (Elt F)),
    reshape main_v4956 main_v4957 rfl shapeCasts_S4x1x16_S4x16,
    unary main_v4957 main_v4958 (broadcastInDim S4x1x16 ![0, 2] bcast_S4x16_S4x1x16_0_2 : (⟨S4x16, .f32⟩ : BufTy).Contents (Elt F) → (⟨S4x1x16, .f32⟩ : BufTy).Contents (Elt F)),
    unary main_v4958 main_v4959 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4955 main_v4959 main_v4960 (mulf : (⟨S4x256x16, .f32⟩ : BufTy).Contents (Elt F) → (⟨S4x256x16, .f32⟩ : BufTy).Contents (Elt F) → (⟨S4x256x16, .f32⟩ : BufTy).Contents (Elt F)),
    nullary main_cst_494 (constant S_ .f32 0x00000000#32),
    binary main_v4960 main_cst_494 main_v4961 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_495 (constantI S_ 32 247#32),
    unary main_c_495 main_v4962 (broadcastInDim S1 ![] bcast_S_S1 : (⟨S_, .i32⟩ : BufTy).Contents (Elt F) → (⟨S1, .i32⟩ : BufTy).Contents (Elt F)),
    ternary main_v4943 main_v4962 main_v4961 main_v4963 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps247_ok : (stepOps247 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step247_val (V : Valuation τ sig (Elt Ideal)) :
    after (stepOps247 (F := Ideal)) V (no_index (Proc.devRef .tc main_v4955)) = stepH 247 (by decide) (V (Proc.devRef .tc main_arg0)) (V (Proc.devRef .tc main_v3)) (V (Proc.devRef .tc main_arg2)) (V (Proc.devRef .tc main_v4935))
    ∧ after (stepOps247 (F := Ideal)) V (no_index (Proc.devRef .tc main_v4963)) = stepY 247 (by decide) (V (Proc.devRef .tc main_arg3)) (stepH 247 (by decide) (V (Proc.devRef .tc main_arg0)) (V (Proc.devRef .tc main_v3)) (V (Proc.devRef .tc main_arg2)) (V (Proc.devRef .tc main_v4935))) (V (Proc.devRef .tc main_v4943)) := by
  simp only [stepOps247]
  after_results_simp
  first | exact ⟨rfl, rfl⟩ | fail "value"
/-- Step 248 of the loop: operations 5463 … 5484 of the program. -/
abbrev stepOps248 : List (HloOp τ sig (Elt F)) :=
  [ unary main_v3 main_v4964 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4955 main_v4964 main_v4965 (mulf : (⟨S4x256x16, .f32⟩ : BufTy).Contents (Elt F) → (⟨S4x256x16, .f32⟩ : BufTy).Contents (Elt F) → (⟨S4x256x16, .f32⟩ : BufTy).Contents (Elt F)),
    unary main_arg0 main_v4966 ((extractStridedSlice S4x1x256 ![0, 248, 0] · slices_S4x512x256_S4x1x256_0_248_0) : (⟨S4x512x256, .f32⟩ : BufTy).Contents (Elt F) → (⟨S4x1x256, .f32⟩ : BufTy).Contents (Elt F)),
    reshape main_v4966 main_v4967 rfl shapeCasts_S4x1x256_S4x256,
    unary main_v4967 main_v4968 (broadcastInDim S4x256x1 ![0, 1] bcast_S4x256_S4x256x1_0_1 : (⟨S4x256, .f32⟩ : BufTy).Contents (Elt F) → (⟨S4x256x1, .f32⟩ : BufTy).Contents (Elt F)),
    unary main_arg2 main_v4969 ((extractStridedSlice S4x1x16 ![0, 248, 0] · slices_S4x512x16_S4x1x16_0_248_0) : (⟨S4x512x16, .f32⟩ : BufTy).Contents (Elt F) → (⟨S4x1x16, .f32⟩ : BufTy).Contents (Elt F)),
    reshape main_v4969 main_v4970 rfl shapeCasts_S4x1x16_S4x16,
    unary main_v4970 main_v4971 (broadcastInDim S4x1x16 ![0, 2] bcast_S4x16_S4x1x16_0_2 : (⟨S4x16, .f32⟩ : BufTy).Contents (Elt F) → (⟨S4x1x16, .f32⟩ : BufTy).Contents (Elt F)),
    unary main_v4968 main_v4972 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4971 main_v4973 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4972 main_v4973 main_v4974 (mulf : (⟨S4x256x16, .f32⟩ : BufTy).Contents (Elt F) → (⟨S4x256x16, .f32⟩ : BufTy).Contents (Elt F) → (⟨S4x256x16, .f32⟩ : BufTy).Contents (Elt F)),
    binary main_v4965 main_v4974 main_v4975 (addf : (⟨S4x256x16, .f32⟩ : BufTy).Contents (Elt F) → (⟨S4x256x16, .f32⟩ : BufTy).Contents (Elt F) → (⟨S4x256x16, .f32⟩ : BufTy).Contents (Elt F)),
    unary main_arg3 main_v4976 ((extractStridedSlice S4x1x16 ![0, 248, 0] · slices_S4x512x16_S4x1x16_0_248_0) : (⟨S4x512x16, .f32⟩ : BufTy).Contents (Elt F) → (⟨S4x1x16, .f32⟩ : BufTy).Contents (Elt F)),
    reshape main_v4976 main_v4977 rfl shapeCasts_S4x1x16_S4x16,
    unary main_v4977 main_v4978 (broadcastInDim S4x1x16 ![0, 2] bcast_S4x16_S4x1x16_0_2 : (⟨S4x16, .f32⟩ : BufTy).Contents (Elt F) → (⟨S4x1x16, .f32⟩ : BufTy).Contents (Elt F)),
    unary main_v4978 main_v4979 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4975 main_v4979 main_v4980 (mulf : (⟨S4x256x16, .f32⟩ : BufTy).Contents (Elt F) → (⟨S4x256x16, .f32⟩ : BufTy).Contents (Elt F) → (⟨S4x256x16, .f32⟩ : BufTy).Contents (Elt F)),
    nullary main_cst_496 (constant S_ .f32 0x00000000#32),
    binary main_v4980 main_cst_496 main_v4981 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_497 (constantI S_ 32 248#32),
    unary main_c_497 main_v4982 (broadcastInDim S1 ![] bcast_S_S1 : (⟨S_, .i32⟩ : BufTy).Contents (Elt F) → (⟨S1, .i32⟩ : BufTy).Contents (Elt F)),
    ternary main_v4963 main_v4982 main_v4981 main_v4983 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps248_ok : (stepOps248 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step248_val (V : Valuation τ sig (Elt Ideal)) :
    after (stepOps248 (F := Ideal)) V (no_index (Proc.devRef .tc main_v4975)) = stepH 248 (by decide) (V (Proc.devRef .tc main_arg0)) (V (Proc.devRef .tc main_v3)) (V (Proc.devRef .tc main_arg2)) (V (Proc.devRef .tc main_v4955))
    ∧ after (stepOps248 (F := Ideal)) V (no_index (Proc.devRef .tc main_v4983)) = stepY 248 (by decide) (V (Proc.devRef .tc main_arg3)) (stepH 248 (by decide) (V (Proc.devRef .tc main_arg0)) (V (Proc.devRef .tc main_v3)) (V (Proc.devRef .tc main_arg2)) (V (Proc.devRef .tc main_v4955))) (V (Proc.devRef .tc main_v4963)) := by
  simp only [stepOps248]
  after_results_simp
  first | exact ⟨rfl, rfl⟩ | fail "value"
/-- Step 249 of the loop: operations 5485 … 5506 of the program. -/
abbrev stepOps249 : List (HloOp τ sig (Elt F)) :=
  [ unary main_v3 main_v4984 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4975 main_v4984 main_v4985 (mulf : (⟨S4x256x16, .f32⟩ : BufTy).Contents (Elt F) → (⟨S4x256x16, .f32⟩ : BufTy).Contents (Elt F) → (⟨S4x256x16, .f32⟩ : BufTy).Contents (Elt F)),
    unary main_arg0 main_v4986 ((extractStridedSlice S4x1x256 ![0, 249, 0] · slices_S4x512x256_S4x1x256_0_249_0) : (⟨S4x512x256, .f32⟩ : BufTy).Contents (Elt F) → (⟨S4x1x256, .f32⟩ : BufTy).Contents (Elt F)),
    reshape main_v4986 main_v4987 rfl shapeCasts_S4x1x256_S4x256,
    unary main_v4987 main_v4988 (broadcastInDim S4x256x1 ![0, 1] bcast_S4x256_S4x256x1_0_1 : (⟨S4x256, .f32⟩ : BufTy).Contents (Elt F) → (⟨S4x256x1, .f32⟩ : BufTy).Contents (Elt F)),
    unary main_arg2 main_v4989 ((extractStridedSlice S4x1x16 ![0, 249, 0] · slices_S4x512x16_S4x1x16_0_249_0) : (⟨S4x512x16, .f32⟩ : BufTy).Contents (Elt F) → (⟨S4x1x16, .f32⟩ : BufTy).Contents (Elt F)),
    reshape main_v4989 main_v4990 rfl shapeCasts_S4x1x16_S4x16,
    unary main_v4990 main_v4991 (broadcastInDim S4x1x16 ![0, 2] bcast_S4x16_S4x1x16_0_2 : (⟨S4x16, .f32⟩ : BufTy).Contents (Elt F) → (⟨S4x1x16, .f32⟩ : BufTy).Contents (Elt F)),
    unary main_v4988 main_v4992 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v4991 main_v4993 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4992 main_v4993 main_v4994 (mulf : (⟨S4x256x16, .f32⟩ : BufTy).Contents (Elt F) → (⟨S4x256x16, .f32⟩ : BufTy).Contents (Elt F) → (⟨S4x256x16, .f32⟩ : BufTy).Contents (Elt F)),
    binary main_v4985 main_v4994 main_v4995 (addf : (⟨S4x256x16, .f32⟩ : BufTy).Contents (Elt F) → (⟨S4x256x16, .f32⟩ : BufTy).Contents (Elt F) → (⟨S4x256x16, .f32⟩ : BufTy).Contents (Elt F)),
    unary main_arg3 main_v4996 ((extractStridedSlice S4x1x16 ![0, 249, 0] · slices_S4x512x16_S4x1x16_0_249_0) : (⟨S4x512x16, .f32⟩ : BufTy).Contents (Elt F) → (⟨S4x1x16, .f32⟩ : BufTy).Contents (Elt F)),
    reshape main_v4996 main_v4997 rfl shapeCasts_S4x1x16_S4x16,
    unary main_v4997 main_v4998 (broadcastInDim S4x1x16 ![0, 2] bcast_S4x16_S4x1x16_0_2 : (⟨S4x16, .f32⟩ : BufTy).Contents (Elt F) → (⟨S4x1x16, .f32⟩ : BufTy).Contents (Elt F)),
    unary main_v4998 main_v4999 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v4995 main_v4999 main_v5000 (mulf : (⟨S4x256x16, .f32⟩ : BufTy).Contents (Elt F) → (⟨S4x256x16, .f32⟩ : BufTy).Contents (Elt F) → (⟨S4x256x16, .f32⟩ : BufTy).Contents (Elt F)),
    nullary main_cst_498 (constant S_ .f32 0x00000000#32),
    binary main_v5000 main_cst_498 main_v5001 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_499 (constantI S_ 32 249#32),
    unary main_c_499 main_v5002 (broadcastInDim S1 ![] bcast_S_S1 : (⟨S_, .i32⟩ : BufTy).Contents (Elt F) → (⟨S1, .i32⟩ : BufTy).Contents (Elt F)),
    ternary main_v4983 main_v5002 main_v5001 main_v5003 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps249_ok : (stepOps249 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step249_val (V : Valuation τ sig (Elt Ideal)) :
    after (stepOps249 (F := Ideal)) V (no_index (Proc.devRef .tc main_v4995)) = stepH 249 (by decide) (V (Proc.devRef .tc main_arg0)) (V (Proc.devRef .tc main_v3)) (V (Proc.devRef .tc main_arg2)) (V (Proc.devRef .tc main_v4975))
    ∧ after (stepOps249 (F := Ideal)) V (no_index (Proc.devRef .tc main_v5003)) = stepY 249 (by decide) (V (Proc.devRef .tc main_arg3)) (stepH 249 (by decide) (V (Proc.devRef .tc main_arg0)) (V (Proc.devRef .tc main_v3)) (V (Proc.devRef .tc main_arg2)) (V (Proc.devRef .tc main_v4975))) (V (Proc.devRef .tc main_v4983)) := by
  simp only [stepOps249]
  after_results_simp
  first | exact ⟨rfl, rfl⟩ | fail "value"
/-- Step 250 of the loop: operations 5507 … 5528 of the program. -/
abbrev stepOps250 : List (HloOp τ sig (Elt F)) :=
  [ unary main_v3 main_v5004 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v4995 main_v5004 main_v5005 (mulf : (⟨S4x256x16, .f32⟩ : BufTy).Contents (Elt F) → (⟨S4x256x16, .f32⟩ : BufTy).Contents (Elt F) → (⟨S4x256x16, .f32⟩ : BufTy).Contents (Elt F)),
    unary main_arg0 main_v5006 ((extractStridedSlice S4x1x256 ![0, 250, 0] · slices_S4x512x256_S4x1x256_0_250_0) : (⟨S4x512x256, .f32⟩ : BufTy).Contents (Elt F) → (⟨S4x1x256, .f32⟩ : BufTy).Contents (Elt F)),
    reshape main_v5006 main_v5007 rfl shapeCasts_S4x1x256_S4x256,
    unary main_v5007 main_v5008 (broadcastInDim S4x256x1 ![0, 1] bcast_S4x256_S4x256x1_0_1 : (⟨S4x256, .f32⟩ : BufTy).Contents (Elt F) → (⟨S4x256x1, .f32⟩ : BufTy).Contents (Elt F)),
    unary main_arg2 main_v5009 ((extractStridedSlice S4x1x16 ![0, 250, 0] · slices_S4x512x16_S4x1x16_0_250_0) : (⟨S4x512x16, .f32⟩ : BufTy).Contents (Elt F) → (⟨S4x1x16, .f32⟩ : BufTy).Contents (Elt F)),
    reshape main_v5009 main_v5010 rfl shapeCasts_S4x1x16_S4x16,
    unary main_v5010 main_v5011 (broadcastInDim S4x1x16 ![0, 2] bcast_S4x16_S4x1x16_0_2 : (⟨S4x16, .f32⟩ : BufTy).Contents (Elt F) → (⟨S4x1x16, .f32⟩ : BufTy).Contents (Elt F)),
    unary main_v5008 main_v5012 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5011 main_v5013 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5012 main_v5013 main_v5014 (mulf : (⟨S4x256x16, .f32⟩ : BufTy).Contents (Elt F) → (⟨S4x256x16, .f32⟩ : BufTy).Contents (Elt F) → (⟨S4x256x16, .f32⟩ : BufTy).Contents (Elt F)),
    binary main_v5005 main_v5014 main_v5015 (addf : (⟨S4x256x16, .f32⟩ : BufTy).Contents (Elt F) → (⟨S4x256x16, .f32⟩ : BufTy).Contents (Elt F) → (⟨S4x256x16, .f32⟩ : BufTy).Contents (Elt F)),
    unary main_arg3 main_v5016 ((extractStridedSlice S4x1x16 ![0, 250, 0] · slices_S4x512x16_S4x1x16_0_250_0) : (⟨S4x512x16, .f32⟩ : BufTy).Contents (Elt F) → (⟨S4x1x16, .f32⟩ : BufTy).Contents (Elt F)),
    reshape main_v5016 main_v5017 rfl shapeCasts_S4x1x16_S4x16,
    unary main_v5017 main_v5018 (broadcastInDim S4x1x16 ![0, 2] bcast_S4x16_S4x1x16_0_2 : (⟨S4x16, .f32⟩ : BufTy).Contents (Elt F) → (⟨S4x1x16, .f32⟩ : BufTy).Contents (Elt F)),
    unary main_v5018 main_v5019 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5015 main_v5019 main_v5020 (mulf : (⟨S4x256x16, .f32⟩ : BufTy).Contents (Elt F) → (⟨S4x256x16, .f32⟩ : BufTy).Contents (Elt F) → (⟨S4x256x16, .f32⟩ : BufTy).Contents (Elt F)),
    nullary main_cst_500 (constant S_ .f32 0x00000000#32),
    binary main_v5020 main_cst_500 main_v5021 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_501 (constantI S_ 32 250#32),
    unary main_c_501 main_v5022 (broadcastInDim S1 ![] bcast_S_S1 : (⟨S_, .i32⟩ : BufTy).Contents (Elt F) → (⟨S1, .i32⟩ : BufTy).Contents (Elt F)),
    ternary main_v5003 main_v5022 main_v5021 main_v5023 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps250_ok : (stepOps250 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step250_val (V : Valuation τ sig (Elt Ideal)) :
    after (stepOps250 (F := Ideal)) V (no_index (Proc.devRef .tc main_v5015)) = stepH 250 (by decide) (V (Proc.devRef .tc main_arg0)) (V (Proc.devRef .tc main_v3)) (V (Proc.devRef .tc main_arg2)) (V (Proc.devRef .tc main_v4995))
    ∧ after (stepOps250 (F := Ideal)) V (no_index (Proc.devRef .tc main_v5023)) = stepY 250 (by decide) (V (Proc.devRef .tc main_arg3)) (stepH 250 (by decide) (V (Proc.devRef .tc main_arg0)) (V (Proc.devRef .tc main_v3)) (V (Proc.devRef .tc main_arg2)) (V (Proc.devRef .tc main_v4995))) (V (Proc.devRef .tc main_v5003)) := by
  simp only [stepOps250]
  after_results_simp
  first | exact ⟨rfl, rfl⟩ | fail "value"
/-- Step 251 of the loop: operations 5529 … 5550 of the program. -/
abbrev stepOps251 : List (HloOp τ sig (Elt F)) :=
  [ unary main_v3 main_v5024 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5015 main_v5024 main_v5025 (mulf : (⟨S4x256x16, .f32⟩ : BufTy).Contents (Elt F) → (⟨S4x256x16, .f32⟩ : BufTy).Contents (Elt F) → (⟨S4x256x16, .f32⟩ : BufTy).Contents (Elt F)),
    unary main_arg0 main_v5026 ((extractStridedSlice S4x1x256 ![0, 251, 0] · slices_S4x512x256_S4x1x256_0_251_0) : (⟨S4x512x256, .f32⟩ : BufTy).Contents (Elt F) → (⟨S4x1x256, .f32⟩ : BufTy).Contents (Elt F)),
    reshape main_v5026 main_v5027 rfl shapeCasts_S4x1x256_S4x256,
    unary main_v5027 main_v5028 (broadcastInDim S4x256x1 ![0, 1] bcast_S4x256_S4x256x1_0_1 : (⟨S4x256, .f32⟩ : BufTy).Contents (Elt F) → (⟨S4x256x1, .f32⟩ : BufTy).Contents (Elt F)),
    unary main_arg2 main_v5029 ((extractStridedSlice S4x1x16 ![0, 251, 0] · slices_S4x512x16_S4x1x16_0_251_0) : (⟨S4x512x16, .f32⟩ : BufTy).Contents (Elt F) → (⟨S4x1x16, .f32⟩ : BufTy).Contents (Elt F)),
    reshape main_v5029 main_v5030 rfl shapeCasts_S4x1x16_S4x16,
    unary main_v5030 main_v5031 (broadcastInDim S4x1x16 ![0, 2] bcast_S4x16_S4x1x16_0_2 : (⟨S4x16, .f32⟩ : BufTy).Contents (Elt F) → (⟨S4x1x16, .f32⟩ : BufTy).Contents (Elt F)),
    unary main_v5028 main_v5032 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5031 main_v5033 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5032 main_v5033 main_v5034 (mulf : (⟨S4x256x16, .f32⟩ : BufTy).Contents (Elt F) → (⟨S4x256x16, .f32⟩ : BufTy).Contents (Elt F) → (⟨S4x256x16, .f32⟩ : BufTy).Contents (Elt F)),
    binary main_v5025 main_v5034 main_v5035 (addf : (⟨S4x256x16, .f32⟩ : BufTy).Contents (Elt F) → (⟨S4x256x16, .f32⟩ : BufTy).Contents (Elt F) → (⟨S4x256x16, .f32⟩ : BufTy).Contents (Elt F)),
    unary main_arg3 main_v5036 ((extractStridedSlice S4x1x16 ![0, 251, 0] · slices_S4x512x16_S4x1x16_0_251_0) : (⟨S4x512x16, .f32⟩ : BufTy).Contents (Elt F) → (⟨S4x1x16, .f32⟩ : BufTy).Contents (Elt F)),
    reshape main_v5036 main_v5037 rfl shapeCasts_S4x1x16_S4x16,
    unary main_v5037 main_v5038 (broadcastInDim S4x1x16 ![0, 2] bcast_S4x16_S4x1x16_0_2 : (⟨S4x16, .f32⟩ : BufTy).Contents (Elt F) → (⟨S4x1x16, .f32⟩ : BufTy).Contents (Elt F)),
    unary main_v5038 main_v5039 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5035 main_v5039 main_v5040 (mulf : (⟨S4x256x16, .f32⟩ : BufTy).Contents (Elt F) → (⟨S4x256x16, .f32⟩ : BufTy).Contents (Elt F) → (⟨S4x256x16, .f32⟩ : BufTy).Contents (Elt F)),
    nullary main_cst_502 (constant S_ .f32 0x00000000#32),
    binary main_v5040 main_cst_502 main_v5041 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_503 (constantI S_ 32 251#32),
    unary main_c_503 main_v5042 (broadcastInDim S1 ![] bcast_S_S1 : (⟨S_, .i32⟩ : BufTy).Contents (Elt F) → (⟨S1, .i32⟩ : BufTy).Contents (Elt F)),
    ternary main_v5023 main_v5042 main_v5041 main_v5043 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps251_ok : (stepOps251 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step251_val (V : Valuation τ sig (Elt Ideal)) :
    after (stepOps251 (F := Ideal)) V (no_index (Proc.devRef .tc main_v5035)) = stepH 251 (by decide) (V (Proc.devRef .tc main_arg0)) (V (Proc.devRef .tc main_v3)) (V (Proc.devRef .tc main_arg2)) (V (Proc.devRef .tc main_v5015))
    ∧ after (stepOps251 (F := Ideal)) V (no_index (Proc.devRef .tc main_v5043)) = stepY 251 (by decide) (V (Proc.devRef .tc main_arg3)) (stepH 251 (by decide) (V (Proc.devRef .tc main_arg0)) (V (Proc.devRef .tc main_v3)) (V (Proc.devRef .tc main_arg2)) (V (Proc.devRef .tc main_v5015))) (V (Proc.devRef .tc main_v5023)) := by
  simp only [stepOps251]
  after_results_simp
  first | exact ⟨rfl, rfl⟩ | fail "value"
/-- Step 252 of the loop: operations 5551 … 5572 of the program. -/
abbrev stepOps252 : List (HloOp τ sig (Elt F)) :=
  [ unary main_v3 main_v5044 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5035 main_v5044 main_v5045 (mulf : (⟨S4x256x16, .f32⟩ : BufTy).Contents (Elt F) → (⟨S4x256x16, .f32⟩ : BufTy).Contents (Elt F) → (⟨S4x256x16, .f32⟩ : BufTy).Contents (Elt F)),
    unary main_arg0 main_v5046 ((extractStridedSlice S4x1x256 ![0, 252, 0] · slices_S4x512x256_S4x1x256_0_252_0) : (⟨S4x512x256, .f32⟩ : BufTy).Contents (Elt F) → (⟨S4x1x256, .f32⟩ : BufTy).Contents (Elt F)),
    reshape main_v5046 main_v5047 rfl shapeCasts_S4x1x256_S4x256,
    unary main_v5047 main_v5048 (broadcastInDim S4x256x1 ![0, 1] bcast_S4x256_S4x256x1_0_1 : (⟨S4x256, .f32⟩ : BufTy).Contents (Elt F) → (⟨S4x256x1, .f32⟩ : BufTy).Contents (Elt F)),
    unary main_arg2 main_v5049 ((extractStridedSlice S4x1x16 ![0, 252, 0] · slices_S4x512x16_S4x1x16_0_252_0) : (⟨S4x512x16, .f32⟩ : BufTy).Contents (Elt F) → (⟨S4x1x16, .f32⟩ : BufTy).Contents (Elt F)),
    reshape main_v5049 main_v5050 rfl shapeCasts_S4x1x16_S4x16,
    unary main_v5050 main_v5051 (broadcastInDim S4x1x16 ![0, 2] bcast_S4x16_S4x1x16_0_2 : (⟨S4x16, .f32⟩ : BufTy).Contents (Elt F) → (⟨S4x1x16, .f32⟩ : BufTy).Contents (Elt F)),
    unary main_v5048 main_v5052 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5051 main_v5053 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5052 main_v5053 main_v5054 (mulf : (⟨S4x256x16, .f32⟩ : BufTy).Contents (Elt F) → (⟨S4x256x16, .f32⟩ : BufTy).Contents (Elt F) → (⟨S4x256x16, .f32⟩ : BufTy).Contents (Elt F)),
    binary main_v5045 main_v5054 main_v5055 (addf : (⟨S4x256x16, .f32⟩ : BufTy).Contents (Elt F) → (⟨S4x256x16, .f32⟩ : BufTy).Contents (Elt F) → (⟨S4x256x16, .f32⟩ : BufTy).Contents (Elt F)),
    unary main_arg3 main_v5056 ((extractStridedSlice S4x1x16 ![0, 252, 0] · slices_S4x512x16_S4x1x16_0_252_0) : (⟨S4x512x16, .f32⟩ : BufTy).Contents (Elt F) → (⟨S4x1x16, .f32⟩ : BufTy).Contents (Elt F)),
    reshape main_v5056 main_v5057 rfl shapeCasts_S4x1x16_S4x16,
    unary main_v5057 main_v5058 (broadcastInDim S4x1x16 ![0, 2] bcast_S4x16_S4x1x16_0_2 : (⟨S4x16, .f32⟩ : BufTy).Contents (Elt F) → (⟨S4x1x16, .f32⟩ : BufTy).Contents (Elt F)),
    unary main_v5058 main_v5059 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5055 main_v5059 main_v5060 (mulf : (⟨S4x256x16, .f32⟩ : BufTy).Contents (Elt F) → (⟨S4x256x16, .f32⟩ : BufTy).Contents (Elt F) → (⟨S4x256x16, .f32⟩ : BufTy).Contents (Elt F)),
    nullary main_cst_504 (constant S_ .f32 0x00000000#32),
    binary main_v5060 main_cst_504 main_v5061 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_505 (constantI S_ 32 252#32),
    unary main_c_505 main_v5062 (broadcastInDim S1 ![] bcast_S_S1 : (⟨S_, .i32⟩ : BufTy).Contents (Elt F) → (⟨S1, .i32⟩ : BufTy).Contents (Elt F)),
    ternary main_v5043 main_v5062 main_v5061 main_v5063 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps252_ok : (stepOps252 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step252_val (V : Valuation τ sig (Elt Ideal)) :
    after (stepOps252 (F := Ideal)) V (no_index (Proc.devRef .tc main_v5055)) = stepH 252 (by decide) (V (Proc.devRef .tc main_arg0)) (V (Proc.devRef .tc main_v3)) (V (Proc.devRef .tc main_arg2)) (V (Proc.devRef .tc main_v5035))
    ∧ after (stepOps252 (F := Ideal)) V (no_index (Proc.devRef .tc main_v5063)) = stepY 252 (by decide) (V (Proc.devRef .tc main_arg3)) (stepH 252 (by decide) (V (Proc.devRef .tc main_arg0)) (V (Proc.devRef .tc main_v3)) (V (Proc.devRef .tc main_arg2)) (V (Proc.devRef .tc main_v5035))) (V (Proc.devRef .tc main_v5043)) := by
  simp only [stepOps252]
  after_results_simp
  first | exact ⟨rfl, rfl⟩ | fail "value"
/-- Step 253 of the loop: operations 5573 … 5594 of the program. -/
abbrev stepOps253 : List (HloOp τ sig (Elt F)) :=
  [ unary main_v3 main_v5064 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5055 main_v5064 main_v5065 (mulf : (⟨S4x256x16, .f32⟩ : BufTy).Contents (Elt F) → (⟨S4x256x16, .f32⟩ : BufTy).Contents (Elt F) → (⟨S4x256x16, .f32⟩ : BufTy).Contents (Elt F)),
    unary main_arg0 main_v5066 ((extractStridedSlice S4x1x256 ![0, 253, 0] · slices_S4x512x256_S4x1x256_0_253_0) : (⟨S4x512x256, .f32⟩ : BufTy).Contents (Elt F) → (⟨S4x1x256, .f32⟩ : BufTy).Contents (Elt F)),
    reshape main_v5066 main_v5067 rfl shapeCasts_S4x1x256_S4x256,
    unary main_v5067 main_v5068 (broadcastInDim S4x256x1 ![0, 1] bcast_S4x256_S4x256x1_0_1 : (⟨S4x256, .f32⟩ : BufTy).Contents (Elt F) → (⟨S4x256x1, .f32⟩ : BufTy).Contents (Elt F)),
    unary main_arg2 main_v5069 ((extractStridedSlice S4x1x16 ![0, 253, 0] · slices_S4x512x16_S4x1x16_0_253_0) : (⟨S4x512x16, .f32⟩ : BufTy).Contents (Elt F) → (⟨S4x1x16, .f32⟩ : BufTy).Contents (Elt F)),
    reshape main_v5069 main_v5070 rfl shapeCasts_S4x1x16_S4x16,
    unary main_v5070 main_v5071 (broadcastInDim S4x1x16 ![0, 2] bcast_S4x16_S4x1x16_0_2 : (⟨S4x16, .f32⟩ : BufTy).Contents (Elt F) → (⟨S4x1x16, .f32⟩ : BufTy).Contents (Elt F)),
    unary main_v5068 main_v5072 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5071 main_v5073 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5072 main_v5073 main_v5074 (mulf : (⟨S4x256x16, .f32⟩ : BufTy).Contents (Elt F) → (⟨S4x256x16, .f32⟩ : BufTy).Contents (Elt F) → (⟨S4x256x16, .f32⟩ : BufTy).Contents (Elt F)),
    binary main_v5065 main_v5074 main_v5075 (addf : (⟨S4x256x16, .f32⟩ : BufTy).Contents (Elt F) → (⟨S4x256x16, .f32⟩ : BufTy).Contents (Elt F) → (⟨S4x256x16, .f32⟩ : BufTy).Contents (Elt F)),
    unary main_arg3 main_v5076 ((extractStridedSlice S4x1x16 ![0, 253, 0] · slices_S4x512x16_S4x1x16_0_253_0) : (⟨S4x512x16, .f32⟩ : BufTy).Contents (Elt F) → (⟨S4x1x16, .f32⟩ : BufTy).Contents (Elt F)),
    reshape main_v5076 main_v5077 rfl shapeCasts_S4x1x16_S4x16,
    unary main_v5077 main_v5078 (broadcastInDim S4x1x16 ![0, 2] bcast_S4x16_S4x1x16_0_2 : (⟨S4x16, .f32⟩ : BufTy).Contents (Elt F) → (⟨S4x1x16, .f32⟩ : BufTy).Contents (Elt F)),
    unary main_v5078 main_v5079 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5075 main_v5079 main_v5080 (mulf : (⟨S4x256x16, .f32⟩ : BufTy).Contents (Elt F) → (⟨S4x256x16, .f32⟩ : BufTy).Contents (Elt F) → (⟨S4x256x16, .f32⟩ : BufTy).Contents (Elt F)),
    nullary main_cst_506 (constant S_ .f32 0x00000000#32),
    binary main_v5080 main_cst_506 main_v5081 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_507 (constantI S_ 32 253#32),
    unary main_c_507 main_v5082 (broadcastInDim S1 ![] bcast_S_S1 : (⟨S_, .i32⟩ : BufTy).Contents (Elt F) → (⟨S1, .i32⟩ : BufTy).Contents (Elt F)),
    ternary main_v5063 main_v5082 main_v5081 main_v5083 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps253_ok : (stepOps253 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step253_val (V : Valuation τ sig (Elt Ideal)) :
    after (stepOps253 (F := Ideal)) V (no_index (Proc.devRef .tc main_v5075)) = stepH 253 (by decide) (V (Proc.devRef .tc main_arg0)) (V (Proc.devRef .tc main_v3)) (V (Proc.devRef .tc main_arg2)) (V (Proc.devRef .tc main_v5055))
    ∧ after (stepOps253 (F := Ideal)) V (no_index (Proc.devRef .tc main_v5083)) = stepY 253 (by decide) (V (Proc.devRef .tc main_arg3)) (stepH 253 (by decide) (V (Proc.devRef .tc main_arg0)) (V (Proc.devRef .tc main_v3)) (V (Proc.devRef .tc main_arg2)) (V (Proc.devRef .tc main_v5055))) (V (Proc.devRef .tc main_v5063)) := by
  simp only [stepOps253]
  after_results_simp
  first | exact ⟨rfl, rfl⟩ | fail "value"
/-- Step 254 of the loop: operations 5595 … 5616 of the program. -/
abbrev stepOps254 : List (HloOp τ sig (Elt F)) :=
  [ unary main_v3 main_v5084 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5075 main_v5084 main_v5085 (mulf : (⟨S4x256x16, .f32⟩ : BufTy).Contents (Elt F) → (⟨S4x256x16, .f32⟩ : BufTy).Contents (Elt F) → (⟨S4x256x16, .f32⟩ : BufTy).Contents (Elt F)),
    unary main_arg0 main_v5086 ((extractStridedSlice S4x1x256 ![0, 254, 0] · slices_S4x512x256_S4x1x256_0_254_0) : (⟨S4x512x256, .f32⟩ : BufTy).Contents (Elt F) → (⟨S4x1x256, .f32⟩ : BufTy).Contents (Elt F)),
    reshape main_v5086 main_v5087 rfl shapeCasts_S4x1x256_S4x256,
    unary main_v5087 main_v5088 (broadcastInDim S4x256x1 ![0, 1] bcast_S4x256_S4x256x1_0_1 : (⟨S4x256, .f32⟩ : BufTy).Contents (Elt F) → (⟨S4x256x1, .f32⟩ : BufTy).Contents (Elt F)),
    unary main_arg2 main_v5089 ((extractStridedSlice S4x1x16 ![0, 254, 0] · slices_S4x512x16_S4x1x16_0_254_0) : (⟨S4x512x16, .f32⟩ : BufTy).Contents (Elt F) → (⟨S4x1x16, .f32⟩ : BufTy).Contents (Elt F)),
    reshape main_v5089 main_v5090 rfl shapeCasts_S4x1x16_S4x16,
    unary main_v5090 main_v5091 (broadcastInDim S4x1x16 ![0, 2] bcast_S4x16_S4x1x16_0_2 : (⟨S4x16, .f32⟩ : BufTy).Contents (Elt F) → (⟨S4x1x16, .f32⟩ : BufTy).Contents (Elt F)),
    unary main_v5088 main_v5092 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5091 main_v5093 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5092 main_v5093 main_v5094 (mulf : (⟨S4x256x16, .f32⟩ : BufTy).Contents (Elt F) → (⟨S4x256x16, .f32⟩ : BufTy).Contents (Elt F) → (⟨S4x256x16, .f32⟩ : BufTy).Contents (Elt F)),
    binary main_v5085 main_v5094 main_v5095 (addf : (⟨S4x256x16, .f32⟩ : BufTy).Contents (Elt F) → (⟨S4x256x16, .f32⟩ : BufTy).Contents (Elt F) → (⟨S4x256x16, .f32⟩ : BufTy).Contents (Elt F)),
    unary main_arg3 main_v5096 ((extractStridedSlice S4x1x16 ![0, 254, 0] · slices_S4x512x16_S4x1x16_0_254_0) : (⟨S4x512x16, .f32⟩ : BufTy).Contents (Elt F) → (⟨S4x1x16, .f32⟩ : BufTy).Contents (Elt F)),
    reshape main_v5096 main_v5097 rfl shapeCasts_S4x1x16_S4x16,
    unary main_v5097 main_v5098 (broadcastInDim S4x1x16 ![0, 2] bcast_S4x16_S4x1x16_0_2 : (⟨S4x16, .f32⟩ : BufTy).Contents (Elt F) → (⟨S4x1x16, .f32⟩ : BufTy).Contents (Elt F)),
    unary main_v5098 main_v5099 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5095 main_v5099 main_v5100 (mulf : (⟨S4x256x16, .f32⟩ : BufTy).Contents (Elt F) → (⟨S4x256x16, .f32⟩ : BufTy).Contents (Elt F) → (⟨S4x256x16, .f32⟩ : BufTy).Contents (Elt F)),
    nullary main_cst_508 (constant S_ .f32 0x00000000#32),
    binary main_v5100 main_cst_508 main_v5101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_509 (constantI S_ 32 254#32),
    unary main_c_509 main_v5102 (broadcastInDim S1 ![] bcast_S_S1 : (⟨S_, .i32⟩ : BufTy).Contents (Elt F) → (⟨S1, .i32⟩ : BufTy).Contents (Elt F)),
    ternary main_v5083 main_v5102 main_v5101 main_v5103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps254_ok : (stepOps254 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step254_val (V : Valuation τ sig (Elt Ideal)) :
    after (stepOps254 (F := Ideal)) V (no_index (Proc.devRef .tc main_v5095)) = stepH 254 (by decide) (V (Proc.devRef .tc main_arg0)) (V (Proc.devRef .tc main_v3)) (V (Proc.devRef .tc main_arg2)) (V (Proc.devRef .tc main_v5075))
    ∧ after (stepOps254 (F := Ideal)) V (no_index (Proc.devRef .tc main_v5103)) = stepY 254 (by decide) (V (Proc.devRef .tc main_arg3)) (stepH 254 (by decide) (V (Proc.devRef .tc main_arg0)) (V (Proc.devRef .tc main_v3)) (V (Proc.devRef .tc main_arg2)) (V (Proc.devRef .tc main_v5075))) (V (Proc.devRef .tc main_v5083)) := by
  simp only [stepOps254]
  after_results_simp
  first | exact ⟨rfl, rfl⟩ | fail "value"
/-- Step 255 of the loop: operations 5617 … 5638 of the program. -/
abbrev stepOps255 : List (HloOp τ sig (Elt F)) :=
  [ unary main_v3 main_v5104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5095 main_v5104 main_v5105 (mulf : (⟨S4x256x16, .f32⟩ : BufTy).Contents (Elt F) → (⟨S4x256x16, .f32⟩ : BufTy).Contents (Elt F) → (⟨S4x256x16, .f32⟩ : BufTy).Contents (Elt F)),
    unary main_arg0 main_v5106 ((extractStridedSlice S4x1x256 ![0, 255, 0] · slices_S4x512x256_S4x1x256_0_255_0) : (⟨S4x512x256, .f32⟩ : BufTy).Contents (Elt F) → (⟨S4x1x256, .f32⟩ : BufTy).Contents (Elt F)),
    reshape main_v5106 main_v5107 rfl shapeCasts_S4x1x256_S4x256,
    unary main_v5107 main_v5108 (broadcastInDim S4x256x1 ![0, 1] bcast_S4x256_S4x256x1_0_1 : (⟨S4x256, .f32⟩ : BufTy).Contents (Elt F) → (⟨S4x256x1, .f32⟩ : BufTy).Contents (Elt F)),
    unary main_arg2 main_v5109 ((extractStridedSlice S4x1x16 ![0, 255, 0] · slices_S4x512x16_S4x1x16_0_255_0) : (⟨S4x512x16, .f32⟩ : BufTy).Contents (Elt F) → (⟨S4x1x16, .f32⟩ : BufTy).Contents (Elt F)),
    reshape main_v5109 main_v5110 rfl shapeCasts_S4x1x16_S4x16,
    unary main_v5110 main_v5111 (broadcastInDim S4x1x16 ![0, 2] bcast_S4x16_S4x1x16_0_2 : (⟨S4x16, .f32⟩ : BufTy).Contents (Elt F) → (⟨S4x1x16, .f32⟩ : BufTy).Contents (Elt F)),
    unary main_v5108 main_v5112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5111 main_v5113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5112 main_v5113 main_v5114 (mulf : (⟨S4x256x16, .f32⟩ : BufTy).Contents (Elt F) → (⟨S4x256x16, .f32⟩ : BufTy).Contents (Elt F) → (⟨S4x256x16, .f32⟩ : BufTy).Contents (Elt F)),
    binary main_v5105 main_v5114 main_v5115 (addf : (⟨S4x256x16, .f32⟩ : BufTy).Contents (Elt F) → (⟨S4x256x16, .f32⟩ : BufTy).Contents (Elt F) → (⟨S4x256x16, .f32⟩ : BufTy).Contents (Elt F)),
    unary main_arg3 main_v5116 ((extractStridedSlice S4x1x16 ![0, 255, 0] · slices_S4x512x16_S4x1x16_0_255_0) : (⟨S4x512x16, .f32⟩ : BufTy).Contents (Elt F) → (⟨S4x1x16, .f32⟩ : BufTy).Contents (Elt F)),
    reshape main_v5116 main_v5117 rfl shapeCasts_S4x1x16_S4x16,
    unary main_v5117 main_v5118 (broadcastInDim S4x1x16 ![0, 2] bcast_S4x16_S4x1x16_0_2 : (⟨S4x16, .f32⟩ : BufTy).Contents (Elt F) → (⟨S4x1x16, .f32⟩ : BufTy).Contents (Elt F)),
    unary main_v5118 main_v5119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5115 main_v5119 main_v5120 (mulf : (⟨S4x256x16, .f32⟩ : BufTy).Contents (Elt F) → (⟨S4x256x16, .f32⟩ : BufTy).Contents (Elt F) → (⟨S4x256x16, .f32⟩ : BufTy).Contents (Elt F)),
    nullary main_cst_510 (constant S_ .f32 0x00000000#32),
    binary main_v5120 main_cst_510 main_v5121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_511 (constantI S_ 32 255#32),
    unary main_c_511 main_v5122 (broadcastInDim S1 ![] bcast_S_S1 : (⟨S_, .i32⟩ : BufTy).Contents (Elt F) → (⟨S1, .i32⟩ : BufTy).Contents (Elt F)),
    ternary main_v5103 main_v5122 main_v5121 main_v5123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps255_ok : (stepOps255 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step255_val (V : Valuation τ sig (Elt Ideal)) :
    after (stepOps255 (F := Ideal)) V (no_index (Proc.devRef .tc main_v5115)) = stepH 255 (by decide) (V (Proc.devRef .tc main_arg0)) (V (Proc.devRef .tc main_v3)) (V (Proc.devRef .tc main_arg2)) (V (Proc.devRef .tc main_v5095))
    ∧ after (stepOps255 (F := Ideal)) V (no_index (Proc.devRef .tc main_v5123)) = stepY 255 (by decide) (V (Proc.devRef .tc main_arg3)) (stepH 255 (by decide) (V (Proc.devRef .tc main_arg0)) (V (Proc.devRef .tc main_v3)) (V (Proc.devRef .tc main_arg2)) (V (Proc.devRef .tc main_v5095))) (V (Proc.devRef .tc main_v5103)) := by
  simp only [stepOps255]
  after_results_simp
  first | exact ⟨rfl, rfl⟩ | fail "value"

end Cert.ReferenceIdeal.RefRun

end
-- ==== Proof.RefTableStep16.lean ====
/-
  Steps 256 … 271 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 256 of the loop: operations 5639 … 5660 of the program. -/
abbrev stepOps256 : List (HloOp τ sig (Elt F)) :=
  [ unary main_v3 main_v5124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5115 main_v5124 main_v5125 (mulf : (⟨S4x256x16, .f32⟩ : BufTy).Contents (Elt F) → (⟨S4x256x16, .f32⟩ : BufTy).Contents (Elt F) → (⟨S4x256x16, .f32⟩ : BufTy).Contents (Elt F)),
    unary main_arg0 main_v5126 ((extractStridedSlice S4x1x256 ![0, 256, 0] · slices_S4x512x256_S4x1x256_0_256_0) : (⟨S4x512x256, .f32⟩ : BufTy).Contents (Elt F) → (⟨S4x1x256, .f32⟩ : BufTy).Contents (Elt F)),
    reshape main_v5126 main_v5127 rfl shapeCasts_S4x1x256_S4x256,
    unary main_v5127 main_v5128 (broadcastInDim S4x256x1 ![0, 1] bcast_S4x256_S4x256x1_0_1 : (⟨S4x256, .f32⟩ : BufTy).Contents (Elt F) → (⟨S4x256x1, .f32⟩ : BufTy).Contents (Elt F)),
    unary main_arg2 main_v5129 ((extractStridedSlice S4x1x16 ![0, 256, 0] · slices_S4x512x16_S4x1x16_0_256_0) : (⟨S4x512x16, .f32⟩ : BufTy).Contents (Elt F) → (⟨S4x1x16, .f32⟩ : BufTy).Contents (Elt F)),
    reshape main_v5129 main_v5130 rfl shapeCasts_S4x1x16_S4x16,
    unary main_v5130 main_v5131 (broadcastInDim S4x1x16 ![0, 2] bcast_S4x16_S4x1x16_0_2 : (⟨S4x16, .f32⟩ : BufTy).Contents (Elt F) → (⟨S4x1x16, .f32⟩ : BufTy).Contents (Elt F)),
    unary main_v5128 main_v5132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5131 main_v5133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5132 main_v5133 main_v5134 (mulf : (⟨S4x256x16, .f32⟩ : BufTy).Contents (Elt F) → (⟨S4x256x16, .f32⟩ : BufTy).Contents (Elt F) → (⟨S4x256x16, .f32⟩ : BufTy).Contents (Elt F)),
    binary main_v5125 main_v5134 main_v5135 (addf : (⟨S4x256x16, .f32⟩ : BufTy).Contents (Elt F) → (⟨S4x256x16, .f32⟩ : BufTy).Contents (Elt F) → (⟨S4x256x16, .f32⟩ : BufTy).Contents (Elt F)),
    unary main_arg3 main_v5136 ((extractStridedSlice S4x1x16 ![0, 256, 0] · slices_S4x512x16_S4x1x16_0_256_0) : (⟨S4x512x16, .f32⟩ : BufTy).Contents (Elt F) → (⟨S4x1x16, .f32⟩ : BufTy).Contents (Elt F)),
    reshape main_v5136 main_v5137 rfl shapeCasts_S4x1x16_S4x16,
    unary main_v5137 main_v5138 (broadcastInDim S4x1x16 ![0, 2] bcast_S4x16_S4x1x16_0_2 : (⟨S4x16, .f32⟩ : BufTy).Contents (Elt F) → (⟨S4x1x16, .f32⟩ : BufTy).Contents (Elt F)),
    unary main_v5138 main_v5139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5135 main_v5139 main_v5140 (mulf : (⟨S4x256x16, .f32⟩ : BufTy).Contents (Elt F) → (⟨S4x256x16, .f32⟩ : BufTy).Contents (Elt F) → (⟨S4x256x16, .f32⟩ : BufTy).Contents (Elt F)),
    nullary main_cst_512 (constant S_ .f32 0x00000000#32),
    binary main_v5140 main_cst_512 main_v5141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_513 (constantI S_ 32 256#32),
    unary main_c_513 main_v5142 (broadcastInDim S1 ![] bcast_S_S1 : (⟨S_, .i32⟩ : BufTy).Contents (Elt F) → (⟨S1, .i32⟩ : BufTy).Contents (Elt F)),
    ternary main_v5123 main_v5142 main_v5141 main_v5143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps256_ok : (stepOps256 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step256_val (V : Valuation τ sig (Elt Ideal)) :
    after (stepOps256 (F := Ideal)) V (no_index (Proc.devRef .tc main_v5135)) = stepH 256 (by decide) (V (Proc.devRef .tc main_arg0)) (V (Proc.devRef .tc main_v3)) (V (Proc.devRef .tc main_arg2)) (V (Proc.devRef .tc main_v5115))
    ∧ after (stepOps256 (F := Ideal)) V (no_index (Proc.devRef .tc main_v5143)) = stepY 256 (by decide) (V (Proc.devRef .tc main_arg3)) (stepH 256 (by decide) (V (Proc.devRef .tc main_arg0)) (V (Proc.devRef .tc main_v3)) (V (Proc.devRef .tc main_arg2)) (V (Proc.devRef .tc main_v5115))) (V (Proc.devRef .tc main_v5123)) := by
  simp only [stepOps256]
  after_results_simp
  first | exact ⟨rfl, rfl⟩ | fail "value"
/-- Step 257 of the loop: operations 5661 … 5682 of the program. -/
abbrev stepOps257 : List (HloOp τ sig (Elt F)) :=
  [ unary main_v3 main_v5144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5135 main_v5144 main_v5145 (mulf : (⟨S4x256x16, .f32⟩ : BufTy).Contents (Elt F) → (⟨S4x256x16, .f32⟩ : BufTy).Contents (Elt F) → (⟨S4x256x16, .f32⟩ : BufTy).Contents (Elt F)),
    unary main_arg0 main_v5146 ((extractStridedSlice S4x1x256 ![0, 257, 0] · slices_S4x512x256_S4x1x256_0_257_0) : (⟨S4x512x256, .f32⟩ : BufTy).Contents (Elt F) → (⟨S4x1x256, .f32⟩ : BufTy).Contents (Elt F)),
    reshape main_v5146 main_v5147 rfl shapeCasts_S4x1x256_S4x256,
    unary main_v5147 main_v5148 (broadcastInDim S4x256x1 ![0, 1] bcast_S4x256_S4x256x1_0_1 : (⟨S4x256, .f32⟩ : BufTy).Contents (Elt F) → (⟨S4x256x1, .f32⟩ : BufTy).Contents (Elt F)),
    unary main_arg2 main_v5149 ((extractStridedSlice S4x1x16 ![0, 257, 0] · slices_S4x512x16_S4x1x16_0_257_0) : (⟨S4x512x16, .f32⟩ : BufTy).Contents (Elt F) → (⟨S4x1x16, .f32⟩ : BufTy).Contents (Elt F)),
    reshape main_v5149 main_v5150 rfl shapeCasts_S4x1x16_S4x16,
    unary main_v5150 main_v5151 (broadcastInDim S4x1x16 ![0, 2] bcast_S4x16_S4x1x16_0_2 : (⟨S4x16, .f32⟩ : BufTy).Contents (Elt F) → (⟨S4x1x16, .f32⟩ : BufTy).Contents (Elt F)),
    unary main_v5148 main_v5152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5151 main_v5153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5152 main_v5153 main_v5154 (mulf : (⟨S4x256x16, .f32⟩ : BufTy).Contents (Elt F) → (⟨S4x256x16, .f32⟩ : BufTy).Contents (Elt F) → (⟨S4x256x16, .f32⟩ : BufTy).Contents (Elt F)),
    binary main_v5145 main_v5154 main_v5155 (addf : (⟨S4x256x16, .f32⟩ : BufTy).Contents (Elt F) → (⟨S4x256x16, .f32⟩ : BufTy).Contents (Elt F) → (⟨S4x256x16, .f32⟩ : BufTy).Contents (Elt F)),
    unary main_arg3 main_v5156 ((extractStridedSlice S4x1x16 ![0, 257, 0] · slices_S4x512x16_S4x1x16_0_257_0) : (⟨S4x512x16, .f32⟩ : BufTy).Contents (Elt F) → (⟨S4x1x16, .f32⟩ : BufTy).Contents (Elt F)),
    reshape main_v5156 main_v5157 rfl shapeCasts_S4x1x16_S4x16,
    unary main_v5157 main_v5158 (broadcastInDim S4x1x16 ![0, 2] bcast_S4x16_S4x1x16_0_2 : (⟨S4x16, .f32⟩ : BufTy).Contents (Elt F) → (⟨S4x1x16, .f32⟩ : BufTy).Contents (Elt F)),
    unary main_v5158 main_v5159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5155 main_v5159 main_v5160 (mulf : (⟨S4x256x16, .f32⟩ : BufTy).Contents (Elt F) → (⟨S4x256x16, .f32⟩ : BufTy).Contents (Elt F) → (⟨S4x256x16, .f32⟩ : BufTy).Contents (Elt F)),
    nullary main_cst_514 (constant S_ .f32 0x00000000#32),
    binary main_v5160 main_cst_514 main_v5161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_515 (constantI S_ 32 257#32),
    unary main_c_515 main_v5162 (broadcastInDim S1 ![] bcast_S_S1 : (⟨S_, .i32⟩ : BufTy).Contents (Elt F) → (⟨S1, .i32⟩ : BufTy).Contents (Elt F)),
    ternary main_v5143 main_v5162 main_v5161 main_v5163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps257_ok : (stepOps257 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step257_val (V : Valuation τ sig (Elt Ideal)) :
    after (stepOps257 (F := Ideal)) V (no_index (Proc.devRef .tc main_v5155)) = stepH 257 (by decide) (V (Proc.devRef .tc main_arg0)) (V (Proc.devRef .tc main_v3)) (V (Proc.devRef .tc main_arg2)) (V (Proc.devRef .tc main_v5135))
    ∧ after (stepOps257 (F := Ideal)) V (no_index (Proc.devRef .tc main_v5163)) = stepY 257 (by decide) (V (Proc.devRef .tc main_arg3)) (stepH 257 (by decide) (V (Proc.devRef .tc main_arg0)) (V (Proc.devRef .tc main_v3)) (V (Proc.devRef .tc main_arg2)) (V (Proc.devRef .tc main_v5135))) (V (Proc.devRef .tc main_v5143)) := by
  simp only [stepOps257]
  after_results_simp
  first | exact ⟨rfl, rfl⟩ | fail "value"
/-- Step 258 of the loop: operations 5683 … 5704 of the program. -/
abbrev stepOps258 : List (HloOp τ sig (Elt F)) :=
  [ unary main_v3 main_v5164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5155 main_v5164 main_v5165 (mulf : (⟨S4x256x16, .f32⟩ : BufTy).Contents (Elt F) → (⟨S4x256x16, .f32⟩ : BufTy).Contents (Elt F) → (⟨S4x256x16, .f32⟩ : BufTy).Contents (Elt F)),
    unary main_arg0 main_v5166 ((extractStridedSlice S4x1x256 ![0, 258, 0] · slices_S4x512x256_S4x1x256_0_258_0) : (⟨S4x512x256, .f32⟩ : BufTy).Contents (Elt F) → (⟨S4x1x256, .f32⟩ : BufTy).Contents (Elt F)),
    reshape main_v5166 main_v5167 rfl shapeCasts_S4x1x256_S4x256,
    unary main_v5167 main_v5168 (broadcastInDim S4x256x1 ![0, 1] bcast_S4x256_S4x256x1_0_1 : (⟨S4x256, .f32⟩ : BufTy).Contents (Elt F) → (⟨S4x256x1, .f32⟩ : BufTy).Contents (Elt F)),
    unary main_arg2 main_v5169 ((extractStridedSlice S4x1x16 ![0, 258, 0] · slices_S4x512x16_S4x1x16_0_258_0) : (⟨S4x512x16, .f32⟩ : BufTy).Contents (Elt F) → (⟨S4x1x16, .f32⟩ : BufTy).Contents (Elt F)),
    reshape main_v5169 main_v5170 rfl shapeCasts_S4x1x16_S4x16,
    unary main_v5170 main_v5171 (broadcastInDim S4x1x16 ![0, 2] bcast_S4x16_S4x1x16_0_2 : (⟨S4x16, .f32⟩ : BufTy).Contents (Elt F) → (⟨S4x1x16, .f32⟩ : BufTy).Contents (Elt F)),
    unary main_v5168 main_v5172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5171 main_v5173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5172 main_v5173 main_v5174 (mulf : (⟨S4x256x16, .f32⟩ : BufTy).Contents (Elt F) → (⟨S4x256x16, .f32⟩ : BufTy).Contents (Elt F) → (⟨S4x256x16, .f32⟩ : BufTy).Contents (Elt F)),
    binary main_v5165 main_v5174 main_v5175 (addf : (⟨S4x256x16, .f32⟩ : BufTy).Contents (Elt F) → (⟨S4x256x16, .f32⟩ : BufTy).Contents (Elt F) → (⟨S4x256x16, .f32⟩ : BufTy).Contents (Elt F)),
    unary main_arg3 main_v5176 ((extractStridedSlice S4x1x16 ![0, 258, 0] · slices_S4x512x16_S4x1x16_0_258_0) : (⟨S4x512x16, .f32⟩ : BufTy).Contents (Elt F) → (⟨S4x1x16, .f32⟩ : BufTy).Contents (Elt F)),
    reshape main_v5176 main_v5177 rfl shapeCasts_S4x1x16_S4x16,
    unary main_v5177 main_v5178 (broadcastInDim S4x1x16 ![0, 2] bcast_S4x16_S4x1x16_0_2 : (⟨S4x16, .f32⟩ : BufTy).Contents (Elt F) → (⟨S4x1x16, .f32⟩ : BufTy).Contents (Elt F)),
    unary main_v5178 main_v5179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5175 main_v5179 main_v5180 (mulf : (⟨S4x256x16, .f32⟩ : BufTy).Contents (Elt F) → (⟨S4x256x16, .f32⟩ : BufTy).Contents (Elt F) → (⟨S4x256x16, .f32⟩ : BufTy).Contents (Elt F)),
    nullary main_cst_516 (constant S_ .f32 0x00000000#32),
    binary main_v5180 main_cst_516 main_v5181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_517 (constantI S_ 32 258#32),
    unary main_c_517 main_v5182 (broadcastInDim S1 ![] bcast_S_S1 : (⟨S_, .i32⟩ : BufTy).Contents (Elt F) → (⟨S1, .i32⟩ : BufTy).Contents (Elt F)),
    ternary main_v5163 main_v5182 main_v5181 main_v5183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps258_ok : (stepOps258 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step258_val (V : Valuation τ sig (Elt Ideal)) :
    after (stepOps258 (F := Ideal)) V (no_index (Proc.devRef .tc main_v5175)) = stepH 258 (by decide) (V (Proc.devRef .tc main_arg0)) (V (Proc.devRef .tc main_v3)) (V (Proc.devRef .tc main_arg2)) (V (Proc.devRef .tc main_v5155))
    ∧ after (stepOps258 (F := Ideal)) V (no_index (Proc.devRef .tc main_v5183)) = stepY 258 (by decide) (V (Proc.devRef .tc main_arg3)) (stepH 258 (by decide) (V (Proc.devRef .tc main_arg0)) (V (Proc.devRef .tc main_v3)) (V (Proc.devRef .tc main_arg2)) (V (Proc.devRef .tc main_v5155))) (V (Proc.devRef .tc main_v5163)) := by
  simp only [stepOps258]
  after_results_simp
  first | exact ⟨rfl, rfl⟩ | fail "value"
/-- Step 259 of the loop: operations 5705 … 5726 of the program. -/
abbrev stepOps259 : List (HloOp τ sig (Elt F)) :=
  [ unary main_v3 main_v5184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5175 main_v5184 main_v5185 (mulf : (⟨S4x256x16, .f32⟩ : BufTy).Contents (Elt F) → (⟨S4x256x16, .f32⟩ : BufTy).Contents (Elt F) → (⟨S4x256x16, .f32⟩ : BufTy).Contents (Elt F)),
    unary main_arg0 main_v5186 ((extractStridedSlice S4x1x256 ![0, 259, 0] · slices_S4x512x256_S4x1x256_0_259_0) : (⟨S4x512x256, .f32⟩ : BufTy).Contents (Elt F) → (⟨S4x1x256, .f32⟩ : BufTy).Contents (Elt F)),
    reshape main_v5186 main_v5187 rfl shapeCasts_S4x1x256_S4x256,
    unary main_v5187 main_v5188 (broadcastInDim S4x256x1 ![0, 1] bcast_S4x256_S4x256x1_0_1 : (⟨S4x256, .f32⟩ : BufTy).Contents (Elt F) → (⟨S4x256x1, .f32⟩ : BufTy).Contents (Elt F)),
    unary main_arg2 main_v5189 ((extractStridedSlice S4x1x16 ![0, 259, 0] · slices_S4x512x16_S4x1x16_0_259_0) : (⟨S4x512x16, .f32⟩ : BufTy).Contents (Elt F) → (⟨S4x1x16, .f32⟩ : BufTy).Contents (Elt F)),
    reshape main_v5189 main_v5190 rfl shapeCasts_S4x1x16_S4x16,
    unary main_v5190 main_v5191 (broadcastInDim S4x1x16 ![0, 2] bcast_S4x16_S4x1x16_0_2 : (⟨S4x16, .f32⟩ : BufTy).Contents (Elt F) → (⟨S4x1x16, .f32⟩ : BufTy).Contents (Elt F)),
    unary main_v5188 main_v5192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5191 main_v5193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5192 main_v5193 main_v5194 (mulf : (⟨S4x256x16, .f32⟩ : BufTy).Contents (Elt F) → (⟨S4x256x16, .f32⟩ : BufTy).Contents (Elt F) → (⟨S4x256x16, .f32⟩ : BufTy).Contents (Elt F)),
    binary main_v5185 main_v5194 main_v5195 (addf : (⟨S4x256x16, .f32⟩ : BufTy).Contents (Elt F) → (⟨S4x256x16, .f32⟩ : BufTy).Contents (Elt F) → (⟨S4x256x16, .f32⟩ : BufTy).Contents (Elt F)),
    unary main_arg3 main_v5196 ((extractStridedSlice S4x1x16 ![0, 259, 0] · slices_S4x512x16_S4x1x16_0_259_0) : (⟨S4x512x16, .f32⟩ : BufTy).Contents (Elt F) → (⟨S4x1x16, .f32⟩ : BufTy).Contents (Elt F)),
    reshape main_v5196 main_v5197 rfl shapeCasts_S4x1x16_S4x16,
    unary main_v5197 main_v5198 (broadcastInDim S4x1x16 ![0, 2] bcast_S4x16_S4x1x16_0_2 : (⟨S4x16, .f32⟩ : BufTy).Contents (Elt F) → (⟨S4x1x16, .f32⟩ : BufTy).Contents (Elt F)),
    unary main_v5198 main_v5199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5195 main_v5199 main_v5200 (mulf : (⟨S4x256x16, .f32⟩ : BufTy).Contents (Elt F) → (⟨S4x256x16, .f32⟩ : BufTy).Contents (Elt F) → (⟨S4x256x16, .f32⟩ : BufTy).Contents (Elt F)),
    nullary main_cst_518 (constant S_ .f32 0x00000000#32),
    binary main_v5200 main_cst_518 main_v5201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_519 (constantI S_ 32 259#32),
    unary main_c_519 main_v5202 (broadcastInDim S1 ![] bcast_S_S1 : (⟨S_, .i32⟩ : BufTy).Contents (Elt F) → (⟨S1, .i32⟩ : BufTy).Contents (Elt F)),
    ternary main_v5183 main_v5202 main_v5201 main_v5203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps259_ok : (stepOps259 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step259_val (V : Valuation τ sig (Elt Ideal)) :
    after (stepOps259 (F := Ideal)) V (no_index (Proc.devRef .tc main_v5195)) = stepH 259 (by decide) (V (Proc.devRef .tc main_arg0)) (V (Proc.devRef .tc main_v3)) (V (Proc.devRef .tc main_arg2)) (V (Proc.devRef .tc main_v5175))
    ∧ after (stepOps259 (F := Ideal)) V (no_index (Proc.devRef .tc main_v5203)) = stepY 259 (by decide) (V (Proc.devRef .tc main_arg3)) (stepH 259 (by decide) (V (Proc.devRef .tc main_arg0)) (V (Proc.devRef .tc main_v3)) (V (Proc.devRef .tc main_arg2)) (V (Proc.devRef .tc main_v5175))) (V (Proc.devRef .tc main_v5183)) := by
  simp only [stepOps259]
  after_results_simp
  first | exact ⟨rfl, rfl⟩ | fail "value"
/-- Step 260 of the loop: operations 5727 … 5748 of the program. -/
abbrev stepOps260 : List (HloOp τ sig (Elt F)) :=
  [ unary main_v3 main_v5204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5195 main_v5204 main_v5205 (mulf : (⟨S4x256x16, .f32⟩ : BufTy).Contents (Elt F) → (⟨S4x256x16, .f32⟩ : BufTy).Contents (Elt F) → (⟨S4x256x16, .f32⟩ : BufTy).Contents (Elt F)),
    unary main_arg0 main_v5206 ((extractStridedSlice S4x1x256 ![0, 260, 0] · slices_S4x512x256_S4x1x256_0_260_0) : (⟨S4x512x256, .f32⟩ : BufTy).Contents (Elt F) → (⟨S4x1x256, .f32⟩ : BufTy).Contents (Elt F)),
    reshape main_v5206 main_v5207 rfl shapeCasts_S4x1x256_S4x256,
    unary main_v5207 main_v5208 (broadcastInDim S4x256x1 ![0, 1] bcast_S4x256_S4x256x1_0_1 : (⟨S4x256, .f32⟩ : BufTy).Contents (Elt F) → (⟨S4x256x1, .f32⟩ : BufTy).Contents (Elt F)),
    unary main_arg2 main_v5209 ((extractStridedSlice S4x1x16 ![0, 260, 0] · slices_S4x512x16_S4x1x16_0_260_0) : (⟨S4x512x16, .f32⟩ : BufTy).Contents (Elt F) → (⟨S4x1x16, .f32⟩ : BufTy).Contents (Elt F)),
    reshape main_v5209 main_v5210 rfl shapeCasts_S4x1x16_S4x16,
    unary main_v5210 main_v5211 (broadcastInDim S4x1x16 ![0, 2] bcast_S4x16_S4x1x16_0_2 : (⟨S4x16, .f32⟩ : BufTy).Contents (Elt F) → (⟨S4x1x16, .f32⟩ : BufTy).Contents (Elt F)),
    unary main_v5208 main_v5212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5211 main_v5213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5212 main_v5213 main_v5214 (mulf : (⟨S4x256x16, .f32⟩ : BufTy).Contents (Elt F) → (⟨S4x256x16, .f32⟩ : BufTy).Contents (Elt F) → (⟨S4x256x16, .f32⟩ : BufTy).Contents (Elt F)),
    binary main_v5205 main_v5214 main_v5215 (addf : (⟨S4x256x16, .f32⟩ : BufTy).Contents (Elt F) → (⟨S4x256x16, .f32⟩ : BufTy).Contents (Elt F) → (⟨S4x256x16, .f32⟩ : BufTy).Contents (Elt F)),
    unary main_arg3 main_v5216 ((extractStridedSlice S4x1x16 ![0, 260, 0] · slices_S4x512x16_S4x1x16_0_260_0) : (⟨S4x512x16, .f32⟩ : BufTy).Contents (Elt F) → (⟨S4x1x16, .f32⟩ : BufTy).Contents (Elt F)),
    reshape main_v5216 main_v5217 rfl shapeCasts_S4x1x16_S4x16,
    unary main_v5217 main_v5218 (broadcastInDim S4x1x16 ![0, 2] bcast_S4x16_S4x1x16_0_2 : (⟨S4x16, .f32⟩ : BufTy).Contents (Elt F) → (⟨S4x1x16, .f32⟩ : BufTy).Contents (Elt F)),
    unary main_v5218 main_v5219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5215 main_v5219 main_v5220 (mulf : (⟨S4x256x16, .f32⟩ : BufTy).Contents (Elt F) → (⟨S4x256x16, .f32⟩ : BufTy).Contents (Elt F) → (⟨S4x256x16, .f32⟩ : BufTy).Contents (Elt F)),
    nullary main_cst_520 (constant S_ .f32 0x00000000#32),
    binary main_v5220 main_cst_520 main_v5221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_521 (constantI S_ 32 260#32),
    unary main_c_521 main_v5222 (broadcastInDim S1 ![] bcast_S_S1 : (⟨S_, .i32⟩ : BufTy).Contents (Elt F) → (⟨S1, .i32⟩ : BufTy).Contents (Elt F)),
    ternary main_v5203 main_v5222 main_v5221 main_v5223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps260_ok : (stepOps260 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step260_val (V : Valuation τ sig (Elt Ideal)) :
    after (stepOps260 (F := Ideal)) V (no_index (Proc.devRef .tc main_v5215)) = stepH 260 (by decide) (V (Proc.devRef .tc main_arg0)) (V (Proc.devRef .tc main_v3)) (V (Proc.devRef .tc main_arg2)) (V (Proc.devRef .tc main_v5195))
    ∧ after (stepOps260 (F := Ideal)) V (no_index (Proc.devRef .tc main_v5223)) = stepY 260 (by decide) (V (Proc.devRef .tc main_arg3)) (stepH 260 (by decide) (V (Proc.devRef .tc main_arg0)) (V (Proc.devRef .tc main_v3)) (V (Proc.devRef .tc main_arg2)) (V (Proc.devRef .tc main_v5195))) (V (Proc.devRef .tc main_v5203)) := by
  simp only [stepOps260]
  after_results_simp
  first | exact ⟨rfl, rfl⟩ | fail "value"
/-- Step 261 of the loop: operations 5749 … 5770 of the program. -/
abbrev stepOps261 : List (HloOp τ sig (Elt F)) :=
  [ unary main_v3 main_v5224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5215 main_v5224 main_v5225 (mulf : (⟨S4x256x16, .f32⟩ : BufTy).Contents (Elt F) → (⟨S4x256x16, .f32⟩ : BufTy).Contents (Elt F) → (⟨S4x256x16, .f32⟩ : BufTy).Contents (Elt F)),
    unary main_arg0 main_v5226 ((extractStridedSlice S4x1x256 ![0, 261, 0] · slices_S4x512x256_S4x1x256_0_261_0) : (⟨S4x512x256, .f32⟩ : BufTy).Contents (Elt F) → (⟨S4x1x256, .f32⟩ : BufTy).Contents (Elt F)),
    reshape main_v5226 main_v5227 rfl shapeCasts_S4x1x256_S4x256,
    unary main_v5227 main_v5228 (broadcastInDim S4x256x1 ![0, 1] bcast_S4x256_S4x256x1_0_1 : (⟨S4x256, .f32⟩ : BufTy).Contents (Elt F) → (⟨S4x256x1, .f32⟩ : BufTy).Contents (Elt F)),
    unary main_arg2 main_v5229 ((extractStridedSlice S4x1x16 ![0, 261, 0] · slices_S4x512x16_S4x1x16_0_261_0) : (⟨S4x512x16, .f32⟩ : BufTy).Contents (Elt F) → (⟨S4x1x16, .f32⟩ : BufTy).Contents (Elt F)),
    reshape main_v5229 main_v5230 rfl shapeCasts_S4x1x16_S4x16,
    unary main_v5230 main_v5231 (broadcastInDim S4x1x16 ![0, 2] bcast_S4x16_S4x1x16_0_2 : (⟨S4x16, .f32⟩ : BufTy).Contents (Elt F) → (⟨S4x1x16, .f32⟩ : BufTy).Contents (Elt F)),
    unary main_v5228 main_v5232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5231 main_v5233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5232 main_v5233 main_v5234 (mulf : (⟨S4x256x16, .f32⟩ : BufTy).Contents (Elt F) → (⟨S4x256x16, .f32⟩ : BufTy).Contents (Elt F) → (⟨S4x256x16, .f32⟩ : BufTy).Contents (Elt F)),
    binary main_v5225 main_v5234 main_v5235 (addf : (⟨S4x256x16, .f32⟩ : BufTy).Contents (Elt F) → (⟨S4x256x16, .f32⟩ : BufTy).Contents (Elt F) → (⟨S4x256x16, .f32⟩ : BufTy).Contents (Elt F)),
    unary main_arg3 main_v5236 ((extractStridedSlice S4x1x16 ![0, 261, 0] · slices_S4x512x16_S4x1x16_0_261_0) : (⟨S4x512x16, .f32⟩ : BufTy).Contents (Elt F) → (⟨S4x1x16, .f32⟩ : BufTy).Contents (Elt F)),
    reshape main_v5236 main_v5237 rfl shapeCasts_S4x1x16_S4x16,
    unary main_v5237 main_v5238 (broadcastInDim S4x1x16 ![0, 2] bcast_S4x16_S4x1x16_0_2 : (⟨S4x16, .f32⟩ : BufTy).Contents (Elt F) → (⟨S4x1x16, .f32⟩ : BufTy).Contents (Elt F)),
    unary main_v5238 main_v5239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5235 main_v5239 main_v5240 (mulf : (⟨S4x256x16, .f32⟩ : BufTy).Contents (Elt F) → (⟨S4x256x16, .f32⟩ : BufTy).Contents (Elt F) → (⟨S4x256x16, .f32⟩ : BufTy).Contents (Elt F)),
    nullary main_cst_522 (constant S_ .f32 0x00000000#32),
    binary main_v5240 main_cst_522 main_v5241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_523 (constantI S_ 32 261#32),
    unary main_c_523 main_v5242 (broadcastInDim S1 ![] bcast_S_S1 : (⟨S_, .i32⟩ : BufTy).Contents (Elt F) → (⟨S1, .i32⟩ : BufTy).Contents (Elt F)),
    ternary main_v5223 main_v5242 main_v5241 main_v5243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps261_ok : (stepOps261 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step261_val (V : Valuation τ sig (Elt Ideal)) :
    after (stepOps261 (F := Ideal)) V (no_index (Proc.devRef .tc main_v5235)) = stepH 261 (by decide) (V (Proc.devRef .tc main_arg0)) (V (Proc.devRef .tc main_v3)) (V (Proc.devRef .tc main_arg2)) (V (Proc.devRef .tc main_v5215))
    ∧ after (stepOps261 (F := Ideal)) V (no_index (Proc.devRef .tc main_v5243)) = stepY 261 (by decide) (V (Proc.devRef .tc main_arg3)) (stepH 261 (by decide) (V (Proc.devRef .tc main_arg0)) (V (Proc.devRef .tc main_v3)) (V (Proc.devRef .tc main_arg2)) (V (Proc.devRef .tc main_v5215))) (V (Proc.devRef .tc main_v5223)) := by
  simp only [stepOps261]
  after_results_simp
  first | exact ⟨rfl, rfl⟩ | fail "value"
/-- Step 262 of the loop: operations 5771 … 5792 of the program. -/
abbrev stepOps262 : List (HloOp τ sig (Elt F)) :=
  [ unary main_v3 main_v5244 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5235 main_v5244 main_v5245 (mulf : (⟨S4x256x16, .f32⟩ : BufTy).Contents (Elt F) → (⟨S4x256x16, .f32⟩ : BufTy).Contents (Elt F) → (⟨S4x256x16, .f32⟩ : BufTy).Contents (Elt F)),
    unary main_arg0 main_v5246 ((extractStridedSlice S4x1x256 ![0, 262, 0] · slices_S4x512x256_S4x1x256_0_262_0) : (⟨S4x512x256, .f32⟩ : BufTy).Contents (Elt F) → (⟨S4x1x256, .f32⟩ : BufTy).Contents (Elt F)),
    reshape main_v5246 main_v5247 rfl shapeCasts_S4x1x256_S4x256,
    unary main_v5247 main_v5248 (broadcastInDim S4x256x1 ![0, 1] bcast_S4x256_S4x256x1_0_1 : (⟨S4x256, .f32⟩ : BufTy).Contents (Elt F) → (⟨S4x256x1, .f32⟩ : BufTy).Contents (Elt F)),
    unary main_arg2 main_v5249 ((extractStridedSlice S4x1x16 ![0, 262, 0] · slices_S4x512x16_S4x1x16_0_262_0) : (⟨S4x512x16, .f32⟩ : BufTy).Contents (Elt F) → (⟨S4x1x16, .f32⟩ : BufTy).Contents (Elt F)),
    reshape main_v5249 main_v5250 rfl shapeCasts_S4x1x16_S4x16,
    unary main_v5250 main_v5251 (broadcastInDim S4x1x16 ![0, 2] bcast_S4x16_S4x1x16_0_2 : (⟨S4x16, .f32⟩ : BufTy).Contents (Elt F) → (⟨S4x1x16, .f32⟩ : BufTy).Contents (Elt F)),
    unary main_v5248 main_v5252 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5251 main_v5253 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5252 main_v5253 main_v5254 (mulf : (⟨S4x256x16, .f32⟩ : BufTy).Contents (Elt F) → (⟨S4x256x16, .f32⟩ : BufTy).Contents (Elt F) → (⟨S4x256x16, .f32⟩ : BufTy).Contents (Elt F)),
    binary main_v5245 main_v5254 main_v5255 (addf : (⟨S4x256x16, .f32⟩ : BufTy).Contents (Elt F) → (⟨S4x256x16, .f32⟩ : BufTy).Contents (Elt F) → (⟨S4x256x16, .f32⟩ : BufTy).Contents (Elt F)),
    unary main_arg3 main_v5256 ((extractStridedSlice S4x1x16 ![0, 262, 0] · slices_S4x512x16_S4x1x16_0_262_0) : (⟨S4x512x16, .f32⟩ : BufTy).Contents (Elt F) → (⟨S4x1x16, .f32⟩ : BufTy).Contents (Elt F)),
    reshape main_v5256 main_v5257 rfl shapeCasts_S4x1x16_S4x16,
    unary main_v5257 main_v5258 (broadcastInDim S4x1x16 ![0, 2] bcast_S4x16_S4x1x16_0_2 : (⟨S4x16, .f32⟩ : BufTy).Contents (Elt F) → (⟨S4x1x16, .f32⟩ : BufTy).Contents (Elt F)),
    unary main_v5258 main_v5259 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5255 main_v5259 main_v5260 (mulf : (⟨S4x256x16, .f32⟩ : BufTy).Contents (Elt F) → (⟨S4x256x16, .f32⟩ : BufTy).Contents (Elt F) → (⟨S4x256x16, .f32⟩ : BufTy).Contents (Elt F)),
    nullary main_cst_524 (constant S_ .f32 0x00000000#32),
    binary main_v5260 main_cst_524 main_v5261 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_525 (constantI S_ 32 262#32),
    unary main_c_525 main_v5262 (broadcastInDim S1 ![] bcast_S_S1 : (⟨S_, .i32⟩ : BufTy).Contents (Elt F) → (⟨S1, .i32⟩ : BufTy).Contents (Elt F)),
    ternary main_v5243 main_v5262 main_v5261 main_v5263 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps262_ok : (stepOps262 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step262_val (V : Valuation τ sig (Elt Ideal)) :
    after (stepOps262 (F := Ideal)) V (no_index (Proc.devRef .tc main_v5255)) = stepH 262 (by decide) (V (Proc.devRef .tc main_arg0)) (V (Proc.devRef .tc main_v3)) (V (Proc.devRef .tc main_arg2)) (V (Proc.devRef .tc main_v5235))
    ∧ after (stepOps262 (F := Ideal)) V (no_index (Proc.devRef .tc main_v5263)) = stepY 262 (by decide) (V (Proc.devRef .tc main_arg3)) (stepH 262 (by decide) (V (Proc.devRef .tc main_arg0)) (V (Proc.devRef .tc main_v3)) (V (Proc.devRef .tc main_arg2)) (V (Proc.devRef .tc main_v5235))) (V (Proc.devRef .tc main_v5243)) := by
  simp only [stepOps262]
  after_results_simp
  first | exact ⟨rfl, rfl⟩ | fail "value"
/-- Step 263 of the loop: operations 5793 … 5814 of the program. -/
abbrev stepOps263 : List (HloOp τ sig (Elt F)) :=
  [ unary main_v3 main_v5264 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5255 main_v5264 main_v5265 (mulf : (⟨S4x256x16, .f32⟩ : BufTy).Contents (Elt F) → (⟨S4x256x16, .f32⟩ : BufTy).Contents (Elt F) → (⟨S4x256x16, .f32⟩ : BufTy).Contents (Elt F)),
    unary main_arg0 main_v5266 ((extractStridedSlice S4x1x256 ![0, 263, 0] · slices_S4x512x256_S4x1x256_0_263_0) : (⟨S4x512x256, .f32⟩ : BufTy).Contents (Elt F) → (⟨S4x1x256, .f32⟩ : BufTy).Contents (Elt F)),
    reshape main_v5266 main_v5267 rfl shapeCasts_S4x1x256_S4x256,
    unary main_v5267 main_v5268 (broadcastInDim S4x256x1 ![0, 1] bcast_S4x256_S4x256x1_0_1 : (⟨S4x256, .f32⟩ : BufTy).Contents (Elt F) → (⟨S4x256x1, .f32⟩ : BufTy).Contents (Elt F)),
    unary main_arg2 main_v5269 ((extractStridedSlice S4x1x16 ![0, 263, 0] · slices_S4x512x16_S4x1x16_0_263_0) : (⟨S4x512x16, .f32⟩ : BufTy).Contents (Elt F) → (⟨S4x1x16, .f32⟩ : BufTy).Contents (Elt F)),
    reshape main_v5269 main_v5270 rfl shapeCasts_S4x1x16_S4x16,
    unary main_v5270 main_v5271 (broadcastInDim S4x1x16 ![0, 2] bcast_S4x16_S4x1x16_0_2 : (⟨S4x16, .f32⟩ : BufTy).Contents (Elt F) → (⟨S4x1x16, .f32⟩ : BufTy).Contents (Elt F)),
    unary main_v5268 main_v5272 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5271 main_v5273 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5272 main_v5273 main_v5274 (mulf : (⟨S4x256x16, .f32⟩ : BufTy).Contents (Elt F) → (⟨S4x256x16, .f32⟩ : BufTy).Contents (Elt F) → (⟨S4x256x16, .f32⟩ : BufTy).Contents (Elt F)),
    binary main_v5265 main_v5274 main_v5275 (addf : (⟨S4x256x16, .f32⟩ : BufTy).Contents (Elt F) → (⟨S4x256x16, .f32⟩ : BufTy).Contents (Elt F) → (⟨S4x256x16, .f32⟩ : BufTy).Contents (Elt F)),
    unary main_arg3 main_v5276 ((extractStridedSlice S4x1x16 ![0, 263, 0] · slices_S4x512x16_S4x1x16_0_263_0) : (⟨S4x512x16, .f32⟩ : BufTy).Contents (Elt F) → (⟨S4x1x16, .f32⟩ : BufTy).Contents (Elt F)),
    reshape main_v5276 main_v5277 rfl shapeCasts_S4x1x16_S4x16,
    unary main_v5277 main_v5278 (broadcastInDim S4x1x16 ![0, 2] bcast_S4x16_S4x1x16_0_2 : (⟨S4x16, .f32⟩ : BufTy).Contents (Elt F) → (⟨S4x1x16, .f32⟩ : BufTy).Contents (Elt F)),
    unary main_v5278 main_v5279 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5275 main_v5279 main_v5280 (mulf : (⟨S4x256x16, .f32⟩ : BufTy).Contents (Elt F) → (⟨S4x256x16, .f32⟩ : BufTy).Contents (Elt F) → (⟨S4x256x16, .f32⟩ : BufTy).Contents (Elt F)),
    nullary main_cst_526 (constant S_ .f32 0x00000000#32),
    binary main_v5280 main_cst_526 main_v5281 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_527 (constantI S_ 32 263#32),
    unary main_c_527 main_v5282 (broadcastInDim S1 ![] bcast_S_S1 : (⟨S_, .i32⟩ : BufTy).Contents (Elt F) → (⟨S1, .i32⟩ : BufTy).Contents (Elt F)),
    ternary main_v5263 main_v5282 main_v5281 main_v5283 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps263_ok : (stepOps263 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step263_val (V : Valuation τ sig (Elt Ideal)) :
    after (stepOps263 (F := Ideal)) V (no_index (Proc.devRef .tc main_v5275)) = stepH 263 (by decide) (V (Proc.devRef .tc main_arg0)) (V (Proc.devRef .tc main_v3)) (V (Proc.devRef .tc main_arg2)) (V (Proc.devRef .tc main_v5255))
    ∧ after (stepOps263 (F := Ideal)) V (no_index (Proc.devRef .tc main_v5283)) = stepY 263 (by decide) (V (Proc.devRef .tc main_arg3)) (stepH 263 (by decide) (V (Proc.devRef .tc main_arg0)) (V (Proc.devRef .tc main_v3)) (V (Proc.devRef .tc main_arg2)) (V (Proc.devRef .tc main_v5255))) (V (Proc.devRef .tc main_v5263)) := by
  simp only [stepOps263]
  after_results_simp
  first | exact ⟨rfl, rfl⟩ | fail "value"
/-- Step 264 of the loop: operations 5815 … 5836 of the program. -/
abbrev stepOps264 : List (HloOp τ sig (Elt F)) :=
  [ unary main_v3 main_v5284 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5275 main_v5284 main_v5285 (mulf : (⟨S4x256x16, .f32⟩ : BufTy).Contents (Elt F) → (⟨S4x256x16, .f32⟩ : BufTy).Contents (Elt F) → (⟨S4x256x16, .f32⟩ : BufTy).Contents (Elt F)),
    unary main_arg0 main_v5286 ((extractStridedSlice S4x1x256 ![0, 264, 0] · slices_S4x512x256_S4x1x256_0_264_0) : (⟨S4x512x256, .f32⟩ : BufTy).Contents (Elt F) → (⟨S4x1x256, .f32⟩ : BufTy).Contents (Elt F)),
    reshape main_v5286 main_v5287 rfl shapeCasts_S4x1x256_S4x256,
    unary main_v5287 main_v5288 (broadcastInDim S4x256x1 ![0, 1] bcast_S4x256_S4x256x1_0_1 : (⟨S4x256, .f32⟩ : BufTy).Contents (Elt F) → (⟨S4x256x1, .f32⟩ : BufTy).Contents (Elt F)),
    unary main_arg2 main_v5289 ((extractStridedSlice S4x1x16 ![0, 264, 0] · slices_S4x512x16_S4x1x16_0_264_0) : (⟨S4x512x16, .f32⟩ : BufTy).Contents (Elt F) → (⟨S4x1x16, .f32⟩ : BufTy).Contents (Elt F)),
    reshape main_v5289 main_v5290 rfl shapeCasts_S4x1x16_S4x16,
    unary main_v5290 main_v5291 (broadcastInDim S4x1x16 ![0, 2] bcast_S4x16_S4x1x16_0_2 : (⟨S4x16, .f32⟩ : BufTy).Contents (Elt F) → (⟨S4x1x16, .f32⟩ : BufTy).Contents (Elt F)),
    unary main_v5288 main_v5292 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5291 main_v5293 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5292 main_v5293 main_v5294 (mulf : (⟨S4x256x16, .f32⟩ : BufTy).Contents (Elt F) → (⟨S4x256x16, .f32⟩ : BufTy).Contents (Elt F) → (⟨S4x256x16, .f32⟩ : BufTy).Contents (Elt F)),
    binary main_v5285 main_v5294 main_v5295 (addf : (⟨S4x256x16, .f32⟩ : BufTy).Contents (Elt F) → (⟨S4x256x16, .f32⟩ : BufTy).Contents (Elt F) → (⟨S4x256x16, .f32⟩ : BufTy).Contents (Elt F)),
    unary main_arg3 main_v5296 ((extractStridedSlice S4x1x16 ![0, 264, 0] · slices_S4x512x16_S4x1x16_0_264_0) : (⟨S4x512x16, .f32⟩ : BufTy).Contents (Elt F) → (⟨S4x1x16, .f32⟩ : BufTy).Contents (Elt F)),
    reshape main_v5296 main_v5297 rfl shapeCasts_S4x1x16_S4x16,
    unary main_v5297 main_v5298 (broadcastInDim S4x1x16 ![0, 2] bcast_S4x16_S4x1x16_0_2 : (⟨S4x16, .f32⟩ : BufTy).Contents (Elt F) → (⟨S4x1x16, .f32⟩ : BufTy).Contents (Elt F)),
    unary main_v5298 main_v5299 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5295 main_v5299 main_v5300 (mulf : (⟨S4x256x16, .f32⟩ : BufTy).Contents (Elt F) → (⟨S4x256x16, .f32⟩ : BufTy).Contents (Elt F) → (⟨S4x256x16, .f32⟩ : BufTy).Contents (Elt F)),
    nullary main_cst_528 (constant S_ .f32 0x00000000#32),
    binary main_v5300 main_cst_528 main_v5301 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_529 (constantI S_ 32 264#32),
    unary main_c_529 main_v5302 (broadcastInDim S1 ![] bcast_S_S1 : (⟨S_, .i32⟩ : BufTy).Contents (Elt F) → (⟨S1, .i32⟩ : BufTy).Contents (Elt F)),
    ternary main_v5283 main_v5302 main_v5301 main_v5303 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps264_ok : (stepOps264 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step264_val (V : Valuation τ sig (Elt Ideal)) :
    after (stepOps264 (F := Ideal)) V (no_index (Proc.devRef .tc main_v5295)) = stepH 264 (by decide) (V (Proc.devRef .tc main_arg0)) (V (Proc.devRef .tc main_v3)) (V (Proc.devRef .tc main_arg2)) (V (Proc.devRef .tc main_v5275))
    ∧ after (stepOps264 (F := Ideal)) V (no_index (Proc.devRef .tc main_v5303)) = stepY 264 (by decide) (V (Proc.devRef .tc main_arg3)) (stepH 264 (by decide) (V (Proc.devRef .tc main_arg0)) (V (Proc.devRef .tc main_v3)) (V (Proc.devRef .tc main_arg2)) (V (Proc.devRef .tc main_v5275))) (V (Proc.devRef .tc main_v5283)) := by
  simp only [stepOps264]
  after_results_simp
  first | exact ⟨rfl, rfl⟩ | fail "value"
/-- Step 265 of the loop: operations 5837 … 5858 of the program. -/
abbrev stepOps265 : List (HloOp τ sig (Elt F)) :=
  [ unary main_v3 main_v5304 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5295 main_v5304 main_v5305 (mulf : (⟨S4x256x16, .f32⟩ : BufTy).Contents (Elt F) → (⟨S4x256x16, .f32⟩ : BufTy).Contents (Elt F) → (⟨S4x256x16, .f32⟩ : BufTy).Contents (Elt F)),
    unary main_arg0 main_v5306 ((extractStridedSlice S4x1x256 ![0, 265, 0] · slices_S4x512x256_S4x1x256_0_265_0) : (⟨S4x512x256, .f32⟩ : BufTy).Contents (Elt F) → (⟨S4x1x256, .f32⟩ : BufTy).Contents (Elt F)),
    reshape main_v5306 main_v5307 rfl shapeCasts_S4x1x256_S4x256,
    unary main_v5307 main_v5308 (broadcastInDim S4x256x1 ![0, 1] bcast_S4x256_S4x256x1_0_1 : (⟨S4x256, .f32⟩ : BufTy).Contents (Elt F) → (⟨S4x256x1, .f32⟩ : BufTy).Contents (Elt F)),
    unary main_arg2 main_v5309 ((extractStridedSlice S4x1x16 ![0, 265, 0] · slices_S4x512x16_S4x1x16_0_265_0) : (⟨S4x512x16, .f32⟩ : BufTy).Contents (Elt F) → (⟨S4x1x16, .f32⟩ : BufTy).Contents (Elt F)),
    reshape main_v5309 main_v5310 rfl shapeCasts_S4x1x16_S4x16,
    unary main_v5310 main_v5311 (broadcastInDim S4x1x16 ![0, 2] bcast_S4x16_S4x1x16_0_2 : (⟨S4x16, .f32⟩ : BufTy).Contents (Elt F) → (⟨S4x1x16, .f32⟩ : BufTy).Contents (Elt F)),
    unary main_v5308 main_v5312 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5311 main_v5313 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5312 main_v5313 main_v5314 (mulf : (⟨S4x256x16, .f32⟩ : BufTy).Contents (Elt F) → (⟨S4x256x16, .f32⟩ : BufTy).Contents (Elt F) → (⟨S4x256x16, .f32⟩ : BufTy).Contents (Elt F)),
    binary main_v5305 main_v5314 main_v5315 (addf : (⟨S4x256x16, .f32⟩ : BufTy).Contents (Elt F) → (⟨S4x256x16, .f32⟩ : BufTy).Contents (Elt F) → (⟨S4x256x16, .f32⟩ : BufTy).Contents (Elt F)),
    unary main_arg3 main_v5316 ((extractStridedSlice S4x1x16 ![0, 265, 0] · slices_S4x512x16_S4x1x16_0_265_0) : (⟨S4x512x16, .f32⟩ : BufTy).Contents (Elt F) → (⟨S4x1x16, .f32⟩ : BufTy).Contents (Elt F)),
    reshape main_v5316 main_v5317 rfl shapeCasts_S4x1x16_S4x16,
    unary main_v5317 main_v5318 (broadcastInDim S4x1x16 ![0, 2] bcast_S4x16_S4x1x16_0_2 : (⟨S4x16, .f32⟩ : BufTy).Contents (Elt F) → (⟨S4x1x16, .f32⟩ : BufTy).Contents (Elt F)),
    unary main_v5318 main_v5319 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5315 main_v5319 main_v5320 (mulf : (⟨S4x256x16, .f32⟩ : BufTy).Contents (Elt F) → (⟨S4x256x16, .f32⟩ : BufTy).Contents (Elt F) → (⟨S4x256x16, .f32⟩ : BufTy).Contents (Elt F)),
    nullary main_cst_530 (constant S_ .f32 0x00000000#32),
    binary main_v5320 main_cst_530 main_v5321 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_531 (constantI S_ 32 265#32),
    unary main_c_531 main_v5322 (broadcastInDim S1 ![] bcast_S_S1 : (⟨S_, .i32⟩ : BufTy).Contents (Elt F) → (⟨S1, .i32⟩ : BufTy).Contents (Elt F)),
    ternary main_v5303 main_v5322 main_v5321 main_v5323 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps265_ok : (stepOps265 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step265_val (V : Valuation τ sig (Elt Ideal)) :
    after (stepOps265 (F := Ideal)) V (no_index (Proc.devRef .tc main_v5315)) = stepH 265 (by decide) (V (Proc.devRef .tc main_arg0)) (V (Proc.devRef .tc main_v3)) (V (Proc.devRef .tc main_arg2)) (V (Proc.devRef .tc main_v5295))
    ∧ after (stepOps265 (F := Ideal)) V (no_index (Proc.devRef .tc main_v5323)) = stepY 265 (by decide) (V (Proc.devRef .tc main_arg3)) (stepH 265 (by decide) (V (Proc.devRef .tc main_arg0)) (V (Proc.devRef .tc main_v3)) (V (Proc.devRef .tc main_arg2)) (V (Proc.devRef .tc main_v5295))) (V (Proc.devRef .tc main_v5303)) := by
  simp only [stepOps265]
  after_results_simp
  first | exact ⟨rfl, rfl⟩ | fail "value"
/-- Step 266 of the loop: operations 5859 … 5880 of the program. -/
abbrev stepOps266 : List (HloOp τ sig (Elt F)) :=
  [ unary main_v3 main_v5324 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5315 main_v5324 main_v5325 (mulf : (⟨S4x256x16, .f32⟩ : BufTy).Contents (Elt F) → (⟨S4x256x16, .f32⟩ : BufTy).Contents (Elt F) → (⟨S4x256x16, .f32⟩ : BufTy).Contents (Elt F)),
    unary main_arg0 main_v5326 ((extractStridedSlice S4x1x256 ![0, 266, 0] · slices_S4x512x256_S4x1x256_0_266_0) : (⟨S4x512x256, .f32⟩ : BufTy).Contents (Elt F) → (⟨S4x1x256, .f32⟩ : BufTy).Contents (Elt F)),
    reshape main_v5326 main_v5327 rfl shapeCasts_S4x1x256_S4x256,
    unary main_v5327 main_v5328 (broadcastInDim S4x256x1 ![0, 1] bcast_S4x256_S4x256x1_0_1 : (⟨S4x256, .f32⟩ : BufTy).Contents (Elt F) → (⟨S4x256x1, .f32⟩ : BufTy).Contents (Elt F)),
    unary main_arg2 main_v5329 ((extractStridedSlice S4x1x16 ![0, 266, 0] · slices_S4x512x16_S4x1x16_0_266_0) : (⟨S4x512x16, .f32⟩ : BufTy).Contents (Elt F) → (⟨S4x1x16, .f32⟩ : BufTy).Contents (Elt F)),
    reshape main_v5329 main_v5330 rfl shapeCasts_S4x1x16_S4x16,
    unary main_v5330 main_v5331 (broadcastInDim S4x1x16 ![0, 2] bcast_S4x16_S4x1x16_0_2 : (⟨S4x16, .f32⟩ : BufTy).Contents (Elt F) → (⟨S4x1x16, .f32⟩ : BufTy).Contents (Elt F)),
    unary main_v5328 main_v5332 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5331 main_v5333 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5332 main_v5333 main_v5334 (mulf : (⟨S4x256x16, .f32⟩ : BufTy).Contents (Elt F) → (⟨S4x256x16, .f32⟩ : BufTy).Contents (Elt F) → (⟨S4x256x16, .f32⟩ : BufTy).Contents (Elt F)),
    binary main_v5325 main_v5334 main_v5335 (addf : (⟨S4x256x16, .f32⟩ : BufTy).Contents (Elt F) → (⟨S4x256x16, .f32⟩ : BufTy).Contents (Elt F) → (⟨S4x256x16, .f32⟩ : BufTy).Contents (Elt F)),
    unary main_arg3 main_v5336 ((extractStridedSlice S4x1x16 ![0, 266, 0] · slices_S4x512x16_S4x1x16_0_266_0) : (⟨S4x512x16, .f32⟩ : BufTy).Contents (Elt F) → (⟨S4x1x16, .f32⟩ : BufTy).Contents (Elt F)),
    reshape main_v5336 main_v5337 rfl shapeCasts_S4x1x16_S4x16,
    unary main_v5337 main_v5338 (broadcastInDim S4x1x16 ![0, 2] bcast_S4x16_S4x1x16_0_2 : (⟨S4x16, .f32⟩ : BufTy).Contents (Elt F) → (⟨S4x1x16, .f32⟩ : BufTy).Contents (Elt F)),
    unary main_v5338 main_v5339 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5335 main_v5339 main_v5340 (mulf : (⟨S4x256x16, .f32⟩ : BufTy).Contents (Elt F) → (⟨S4x256x16, .f32⟩ : BufTy).Contents (Elt F) → (⟨S4x256x16, .f32⟩ : BufTy).Contents (Elt F)),
    nullary main_cst_532 (constant S_ .f32 0x00000000#32),
    binary main_v5340 main_cst_532 main_v5341 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_533 (constantI S_ 32 266#32),
    unary main_c_533 main_v5342 (broadcastInDim S1 ![] bcast_S_S1 : (⟨S_, .i32⟩ : BufTy).Contents (Elt F) → (⟨S1, .i32⟩ : BufTy).Contents (Elt F)),
    ternary main_v5323 main_v5342 main_v5341 main_v5343 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps266_ok : (stepOps266 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step266_val (V : Valuation τ sig (Elt Ideal)) :
    after (stepOps266 (F := Ideal)) V (no_index (Proc.devRef .tc main_v5335)) = stepH 266 (by decide) (V (Proc.devRef .tc main_arg0)) (V (Proc.devRef .tc main_v3)) (V (Proc.devRef .tc main_arg2)) (V (Proc.devRef .tc main_v5315))
    ∧ after (stepOps266 (F := Ideal)) V (no_index (Proc.devRef .tc main_v5343)) = stepY 266 (by decide) (V (Proc.devRef .tc main_arg3)) (stepH 266 (by decide) (V (Proc.devRef .tc main_arg0)) (V (Proc.devRef .tc main_v3)) (V (Proc.devRef .tc main_arg2)) (V (Proc.devRef .tc main_v5315))) (V (Proc.devRef .tc main_v5323)) := by
  simp only [stepOps266]
  after_results_simp
  first | exact ⟨rfl, rfl⟩ | fail "value"
/-- Step 267 of the loop: operations 5881 … 5902 of the program. -/
abbrev stepOps267 : List (HloOp τ sig (Elt F)) :=
  [ unary main_v3 main_v5344 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5335 main_v5344 main_v5345 (mulf : (⟨S4x256x16, .f32⟩ : BufTy).Contents (Elt F) → (⟨S4x256x16, .f32⟩ : BufTy).Contents (Elt F) → (⟨S4x256x16, .f32⟩ : BufTy).Contents (Elt F)),
    unary main_arg0 main_v5346 ((extractStridedSlice S4x1x256 ![0, 267, 0] · slices_S4x512x256_S4x1x256_0_267_0) : (⟨S4x512x256, .f32⟩ : BufTy).Contents (Elt F) → (⟨S4x1x256, .f32⟩ : BufTy).Contents (Elt F)),
    reshape main_v5346 main_v5347 rfl shapeCasts_S4x1x256_S4x256,
    unary main_v5347 main_v5348 (broadcastInDim S4x256x1 ![0, 1] bcast_S4x256_S4x256x1_0_1 : (⟨S4x256, .f32⟩ : BufTy).Contents (Elt F) → (⟨S4x256x1, .f32⟩ : BufTy).Contents (Elt F)),
    unary main_arg2 main_v5349 ((extractStridedSlice S4x1x16 ![0, 267, 0] · slices_S4x512x16_S4x1x16_0_267_0) : (⟨S4x512x16, .f32⟩ : BufTy).Contents (Elt F) → (⟨S4x1x16, .f32⟩ : BufTy).Contents (Elt F)),
    reshape main_v5349 main_v5350 rfl shapeCasts_S4x1x16_S4x16,
    unary main_v5350 main_v5351 (broadcastInDim S4x1x16 ![0, 2] bcast_S4x16_S4x1x16_0_2 : (⟨S4x16, .f32⟩ : BufTy).Contents (Elt F) → (⟨S4x1x16, .f32⟩ : BufTy).Contents (Elt F)),
    unary main_v5348 main_v5352 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5351 main_v5353 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5352 main_v5353 main_v5354 (mulf : (⟨S4x256x16, .f32⟩ : BufTy).Contents (Elt F) → (⟨S4x256x16, .f32⟩ : BufTy).Contents (Elt F) → (⟨S4x256x16, .f32⟩ : BufTy).Contents (Elt F)),
    binary main_v5345 main_v5354 main_v5355 (addf : (⟨S4x256x16, .f32⟩ : BufTy).Contents (Elt F) → (⟨S4x256x16, .f32⟩ : BufTy).Contents (Elt F) → (⟨S4x256x16, .f32⟩ : BufTy).Contents (Elt F)),
    unary main_arg3 main_v5356 ((extractStridedSlice S4x1x16 ![0, 267, 0] · slices_S4x512x16_S4x1x16_0_267_0) : (⟨S4x512x16, .f32⟩ : BufTy).Contents (Elt F) → (⟨S4x1x16, .f32⟩ : BufTy).Contents (Elt F)),
    reshape main_v5356 main_v5357 rfl shapeCasts_S4x1x16_S4x16,
    unary main_v5357 main_v5358 (broadcastInDim S4x1x16 ![0, 2] bcast_S4x16_S4x1x16_0_2 : (⟨S4x16, .f32⟩ : BufTy).Contents (Elt F) → (⟨S4x1x16, .f32⟩ : BufTy).Contents (Elt F)),
    unary main_v5358 main_v5359 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5355 main_v5359 main_v5360 (mulf : (⟨S4x256x16, .f32⟩ : BufTy).Contents (Elt F) → (⟨S4x256x16, .f32⟩ : BufTy).Contents (Elt F) → (⟨S4x256x16, .f32⟩ : BufTy).Contents (Elt F)),
    nullary main_cst_534 (constant S_ .f32 0x00000000#32),
    binary main_v5360 main_cst_534 main_v5361 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_535 (constantI S_ 32 267#32),
    unary main_c_535 main_v5362 (broadcastInDim S1 ![] bcast_S_S1 : (⟨S_, .i32⟩ : BufTy).Contents (Elt F) → (⟨S1, .i32⟩ : BufTy).Contents (Elt F)),
    ternary main_v5343 main_v5362 main_v5361 main_v5363 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps267_ok : (stepOps267 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step267_val (V : Valuation τ sig (Elt Ideal)) :
    after (stepOps267 (F := Ideal)) V (no_index (Proc.devRef .tc main_v5355)) = stepH 267 (by decide) (V (Proc.devRef .tc main_arg0)) (V (Proc.devRef .tc main_v3)) (V (Proc.devRef .tc main_arg2)) (V (Proc.devRef .tc main_v5335))
    ∧ after (stepOps267 (F := Ideal)) V (no_index (Proc.devRef .tc main_v5363)) = stepY 267 (by decide) (V (Proc.devRef .tc main_arg3)) (stepH 267 (by decide) (V (Proc.devRef .tc main_arg0)) (V (Proc.devRef .tc main_v3)) (V (Proc.devRef .tc main_arg2)) (V (Proc.devRef .tc main_v5335))) (V (Proc.devRef .tc main_v5343)) := by
  simp only [stepOps267]
  after_results_simp
  first | exact ⟨rfl, rfl⟩ | fail "value"
/-- Step 268 of the loop: operations 5903 … 5924 of the program. -/
abbrev stepOps268 : List (HloOp τ sig (Elt F)) :=
  [ unary main_v3 main_v5364 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5355 main_v5364 main_v5365 (mulf : (⟨S4x256x16, .f32⟩ : BufTy).Contents (Elt F) → (⟨S4x256x16, .f32⟩ : BufTy).Contents (Elt F) → (⟨S4x256x16, .f32⟩ : BufTy).Contents (Elt F)),
    unary main_arg0 main_v5366 ((extractStridedSlice S4x1x256 ![0, 268, 0] · slices_S4x512x256_S4x1x256_0_268_0) : (⟨S4x512x256, .f32⟩ : BufTy).Contents (Elt F) → (⟨S4x1x256, .f32⟩ : BufTy).Contents (Elt F)),
    reshape main_v5366 main_v5367 rfl shapeCasts_S4x1x256_S4x256,
    unary main_v5367 main_v5368 (broadcastInDim S4x256x1 ![0, 1] bcast_S4x256_S4x256x1_0_1 : (⟨S4x256, .f32⟩ : BufTy).Contents (Elt F) → (⟨S4x256x1, .f32⟩ : BufTy).Contents (Elt F)),
    unary main_arg2 main_v5369 ((extractStridedSlice S4x1x16 ![0, 268, 0] · slices_S4x512x16_S4x1x16_0_268_0) : (⟨S4x512x16, .f32⟩ : BufTy).Contents (Elt F) → (⟨S4x1x16, .f32⟩ : BufTy).Contents (Elt F)),
    reshape main_v5369 main_v5370 rfl shapeCasts_S4x1x16_S4x16,
    unary main_v5370 main_v5371 (broadcastInDim S4x1x16 ![0, 2] bcast_S4x16_S4x1x16_0_2 : (⟨S4x16, .f32⟩ : BufTy).Contents (Elt F) → (⟨S4x1x16, .f32⟩ : BufTy).Contents (Elt F)),
    unary main_v5368 main_v5372 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5371 main_v5373 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5372 main_v5373 main_v5374 (mulf : (⟨S4x256x16, .f32⟩ : BufTy).Contents (Elt F) → (⟨S4x256x16, .f32⟩ : BufTy).Contents (Elt F) → (⟨S4x256x16, .f32⟩ : BufTy).Contents (Elt F)),
    binary main_v5365 main_v5374 main_v5375 (addf : (⟨S4x256x16, .f32⟩ : BufTy).Contents (Elt F) → (⟨S4x256x16, .f32⟩ : BufTy).Contents (Elt F) → (⟨S4x256x16, .f32⟩ : BufTy).Contents (Elt F)),
    unary main_arg3 main_v5376 ((extractStridedSlice S4x1x16 ![0, 268, 0] · slices_S4x512x16_S4x1x16_0_268_0) : (⟨S4x512x16, .f32⟩ : BufTy).Contents (Elt F) → (⟨S4x1x16, .f32⟩ : BufTy).Contents (Elt F)),
    reshape main_v5376 main_v5377 rfl shapeCasts_S4x1x16_S4x16,
    unary main_v5377 main_v5378 (broadcastInDim S4x1x16 ![0, 2] bcast_S4x16_S4x1x16_0_2 : (⟨S4x16, .f32⟩ : BufTy).Contents (Elt F) → (⟨S4x1x16, .f32⟩ : BufTy).Contents (Elt F)),
    unary main_v5378 main_v5379 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5375 main_v5379 main_v5380 (mulf : (⟨S4x256x16, .f32⟩ : BufTy).Contents (Elt F) → (⟨S4x256x16, .f32⟩ : BufTy).Contents (Elt F) → (⟨S4x256x16, .f32⟩ : BufTy).Contents (Elt F)),
    nullary main_cst_536 (constant S_ .f32 0x00000000#32),
    binary main_v5380 main_cst_536 main_v5381 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_537 (constantI S_ 32 268#32),
    unary main_c_537 main_v5382 (broadcastInDim S1 ![] bcast_S_S1 : (⟨S_, .i32⟩ : BufTy).Contents (Elt F) → (⟨S1, .i32⟩ : BufTy).Contents (Elt F)),
    ternary main_v5363 main_v5382 main_v5381 main_v5383 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps268_ok : (stepOps268 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step268_val (V : Valuation τ sig (Elt Ideal)) :
    after (stepOps268 (F := Ideal)) V (no_index (Proc.devRef .tc main_v5375)) = stepH 268 (by decide) (V (Proc.devRef .tc main_arg0)) (V (Proc.devRef .tc main_v3)) (V (Proc.devRef .tc main_arg2)) (V (Proc.devRef .tc main_v5355))
    ∧ after (stepOps268 (F := Ideal)) V (no_index (Proc.devRef .tc main_v5383)) = stepY 268 (by decide) (V (Proc.devRef .tc main_arg3)) (stepH 268 (by decide) (V (Proc.devRef .tc main_arg0)) (V (Proc.devRef .tc main_v3)) (V (Proc.devRef .tc main_arg2)) (V (Proc.devRef .tc main_v5355))) (V (Proc.devRef .tc main_v5363)) := by
  simp only [stepOps268]
  after_results_simp
  first | exact ⟨rfl, rfl⟩ | fail "value"
/-- Step 269 of the loop: operations 5925 … 5946 of the program. -/
abbrev stepOps269 : List (HloOp τ sig (Elt F)) :=
  [ unary main_v3 main_v5384 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5375 main_v5384 main_v5385 (mulf : (⟨S4x256x16, .f32⟩ : BufTy).Contents (Elt F) → (⟨S4x256x16, .f32⟩ : BufTy).Contents (Elt F) → (⟨S4x256x16, .f32⟩ : BufTy).Contents (Elt F)),
    unary main_arg0 main_v5386 ((extractStridedSlice S4x1x256 ![0, 269, 0] · slices_S4x512x256_S4x1x256_0_269_0) : (⟨S4x512x256, .f32⟩ : BufTy).Contents (Elt F) → (⟨S4x1x256, .f32⟩ : BufTy).Contents (Elt F)),
    reshape main_v5386 main_v5387 rfl shapeCasts_S4x1x256_S4x256,
    unary main_v5387 main_v5388 (broadcastInDim S4x256x1 ![0, 1] bcast_S4x256_S4x256x1_0_1 : (⟨S4x256, .f32⟩ : BufTy).Contents (Elt F) → (⟨S4x256x1, .f32⟩ : BufTy).Contents (Elt F)),
    unary main_arg2 main_v5389 ((extractStridedSlice S4x1x16 ![0, 269, 0] · slices_S4x512x16_S4x1x16_0_269_0) : (⟨S4x512x16, .f32⟩ : BufTy).Contents (Elt F) → (⟨S4x1x16, .f32⟩ : BufTy).Contents (Elt F)),
    reshape main_v5389 main_v5390 rfl shapeCasts_S4x1x16_S4x16,
    unary main_v5390 main_v5391 (broadcastInDim S4x1x16 ![0, 2] bcast_S4x16_S4x1x16_0_2 : (⟨S4x16, .f32⟩ : BufTy).Contents (Elt F) → (⟨S4x1x16, .f32⟩ : BufTy).Contents (Elt F)),
    unary main_v5388 main_v5392 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5391 main_v5393 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5392 main_v5393 main_v5394 (mulf : (⟨S4x256x16, .f32⟩ : BufTy).Contents (Elt F) → (⟨S4x256x16, .f32⟩ : BufTy).Contents (Elt F) → (⟨S4x256x16, .f32⟩ : BufTy).Contents (Elt F)),
    binary main_v5385 main_v5394 main_v5395 (addf : (⟨S4x256x16, .f32⟩ : BufTy).Contents (Elt F) → (⟨S4x256x16, .f32⟩ : BufTy).Contents (Elt F) → (⟨S4x256x16, .f32⟩ : BufTy).Contents (Elt F)),
    unary main_arg3 main_v5396 ((extractStridedSlice S4x1x16 ![0, 269, 0] · slices_S4x512x16_S4x1x16_0_269_0) : (⟨S4x512x16, .f32⟩ : BufTy).Contents (Elt F) → (⟨S4x1x16, .f32⟩ : BufTy).Contents (Elt F)),
    reshape main_v5396 main_v5397 rfl shapeCasts_S4x1x16_S4x16,
    unary main_v5397 main_v5398 (broadcastInDim S4x1x16 ![0, 2] bcast_S4x16_S4x1x16_0_2 : (⟨S4x16, .f32⟩ : BufTy).Contents (Elt F) → (⟨S4x1x16, .f32⟩ : BufTy).Contents (Elt F)),
    unary main_v5398 main_v5399 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5395 main_v5399 main_v5400 (mulf : (⟨S4x256x16, .f32⟩ : BufTy).Contents (Elt F) → (⟨S4x256x16, .f32⟩ : BufTy).Contents (Elt F) → (⟨S4x256x16, .f32⟩ : BufTy).Contents (Elt F)),
    nullary main_cst_538 (constant S_ .f32 0x00000000#32),
    binary main_v5400 main_cst_538 main_v5401 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_539 (constantI S_ 32 269#32),
    unary main_c_539 main_v5402 (broadcastInDim S1 ![] bcast_S_S1 : (⟨S_, .i32⟩ : BufTy).Contents (Elt F) → (⟨S1, .i32⟩ : BufTy).Contents (Elt F)),
    ternary main_v5383 main_v5402 main_v5401 main_v5403 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps269_ok : (stepOps269 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step269_val (V : Valuation τ sig (Elt Ideal)) :
    after (stepOps269 (F := Ideal)) V (no_index (Proc.devRef .tc main_v5395)) = stepH 269 (by decide) (V (Proc.devRef .tc main_arg0)) (V (Proc.devRef .tc main_v3)) (V (Proc.devRef .tc main_arg2)) (V (Proc.devRef .tc main_v5375))
    ∧ after (stepOps269 (F := Ideal)) V (no_index (Proc.devRef .tc main_v5403)) = stepY 269 (by decide) (V (Proc.devRef .tc main_arg3)) (stepH 269 (by decide) (V (Proc.devRef .tc main_arg0)) (V (Proc.devRef .tc main_v3)) (V (Proc.devRef .tc main_arg2)) (V (Proc.devRef .tc main_v5375))) (V (Proc.devRef .tc main_v5383)) := by
  simp only [stepOps269]
  after_results_simp
  first | exact ⟨rfl, rfl⟩ | fail "value"
/-- Step 270 of the loop: operations 5947 … 5968 of the program. -/
abbrev stepOps270 : List (HloOp τ sig (Elt F)) :=
  [ unary main_v3 main_v5404 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5395 main_v5404 main_v5405 (mulf : (⟨S4x256x16, .f32⟩ : BufTy).Contents (Elt F) → (⟨S4x256x16, .f32⟩ : BufTy).Contents (Elt F) → (⟨S4x256x16, .f32⟩ : BufTy).Contents (Elt F)),
    unary main_arg0 main_v5406 ((extractStridedSlice S4x1x256 ![0, 270, 0] · slices_S4x512x256_S4x1x256_0_270_0) : (⟨S4x512x256, .f32⟩ : BufTy).Contents (Elt F) → (⟨S4x1x256, .f32⟩ : BufTy).Contents (Elt F)),
    reshape main_v5406 main_v5407 rfl shapeCasts_S4x1x256_S4x256,
    unary main_v5407 main_v5408 (broadcastInDim S4x256x1 ![0, 1] bcast_S4x256_S4x256x1_0_1 : (⟨S4x256, .f32⟩ : BufTy).Contents (Elt F) → (⟨S4x256x1, .f32⟩ : BufTy).Contents (Elt F)),
    unary main_arg2 main_v5409 ((extractStridedSlice S4x1x16 ![0, 270, 0] · slices_S4x512x16_S4x1x16_0_270_0) : (⟨S4x512x16, .f32⟩ : BufTy).Contents (Elt F) → (⟨S4x1x16, .f32⟩ : BufTy).Contents (Elt F)),
    reshape main_v5409 main_v5410 rfl shapeCasts_S4x1x16_S4x16,
    unary main_v5410 main_v5411 (broadcastInDim S4x1x16 ![0, 2] bcast_S4x16_S4x1x16_0_2 : (⟨S4x16, .f32⟩ : BufTy).Contents (Elt F) → (⟨S4x1x16, .f32⟩ : BufTy).Contents (Elt F)),
    unary main_v5408 main_v5412 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5411 main_v5413 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5412 main_v5413 main_v5414 (mulf : (⟨S4x256x16, .f32⟩ : BufTy).Contents (Elt F) → (⟨S4x256x16, .f32⟩ : BufTy).Contents (Elt F) → (⟨S4x256x16, .f32⟩ : BufTy).Contents (Elt F)),
    binary main_v5405 main_v5414 main_v5415 (addf : (⟨S4x256x16, .f32⟩ : BufTy).Contents (Elt F) → (⟨S4x256x16, .f32⟩ : BufTy).Contents (Elt F) → (⟨S4x256x16, .f32⟩ : BufTy).Contents (Elt F)),
    unary main_arg3 main_v5416 ((extractStridedSlice S4x1x16 ![0, 270, 0] · slices_S4x512x16_S4x1x16_0_270_0) : (⟨S4x512x16, .f32⟩ : BufTy).Contents (Elt F) → (⟨S4x1x16, .f32⟩ : BufTy).Contents (Elt F)),
    reshape main_v5416 main_v5417 rfl shapeCasts_S4x1x16_S4x16,
    unary main_v5417 main_v5418 (broadcastInDim S4x1x16 ![0, 2] bcast_S4x16_S4x1x16_0_2 : (⟨S4x16, .f32⟩ : BufTy).Contents (Elt F) → (⟨S4x1x16, .f32⟩ : BufTy).Contents (Elt F)),
    unary main_v5418 main_v5419 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5415 main_v5419 main_v5420 (mulf : (⟨S4x256x16, .f32⟩ : BufTy).Contents (Elt F) → (⟨S4x256x16, .f32⟩ : BufTy).Contents (Elt F) → (⟨S4x256x16, .f32⟩ : BufTy).Contents (Elt F)),
    nullary main_cst_540 (constant S_ .f32 0x00000000#32),
    binary main_v5420 main_cst_540 main_v5421 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_541 (constantI S_ 32 270#32),
    unary main_c_541 main_v5422 (broadcastInDim S1 ![] bcast_S_S1 : (⟨S_, .i32⟩ : BufTy).Contents (Elt F) → (⟨S1, .i32⟩ : BufTy).Contents (Elt F)),
    ternary main_v5403 main_v5422 main_v5421 main_v5423 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps270_ok : (stepOps270 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step270_val (V : Valuation τ sig (Elt Ideal)) :
    after (stepOps270 (F := Ideal)) V (no_index (Proc.devRef .tc main_v5415)) = stepH 270 (by decide) (V (Proc.devRef .tc main_arg0)) (V (Proc.devRef .tc main_v3)) (V (Proc.devRef .tc main_arg2)) (V (Proc.devRef .tc main_v5395))
    ∧ after (stepOps270 (F := Ideal)) V (no_index (Proc.devRef .tc main_v5423)) = stepY 270 (by decide) (V (Proc.devRef .tc main_arg3)) (stepH 270 (by decide) (V (Proc.devRef .tc main_arg0)) (V (Proc.devRef .tc main_v3)) (V (Proc.devRef .tc main_arg2)) (V (Proc.devRef .tc main_v5395))) (V (Proc.devRef .tc main_v5403)) := by
  simp only [stepOps270]
  after_results_simp
  first | exact ⟨rfl, rfl⟩ | fail "value"
/-- Step 271 of the loop: operations 5969 … 5990 of the program. -/
abbrev stepOps271 : List (HloOp τ sig (Elt F)) :=
  [ unary main_v3 main_v5424 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5415 main_v5424 main_v5425 (mulf : (⟨S4x256x16, .f32⟩ : BufTy).Contents (Elt F) → (⟨S4x256x16, .f32⟩ : BufTy).Contents (Elt F) → (⟨S4x256x16, .f32⟩ : BufTy).Contents (Elt F)),
    unary main_arg0 main_v5426 ((extractStridedSlice S4x1x256 ![0, 271, 0] · slices_S4x512x256_S4x1x256_0_271_0) : (⟨S4x512x256, .f32⟩ : BufTy).Contents (Elt F) → (⟨S4x1x256, .f32⟩ : BufTy).Contents (Elt F)),
    reshape main_v5426 main_v5427 rfl shapeCasts_S4x1x256_S4x256,
    unary main_v5427 main_v5428 (broadcastInDim S4x256x1 ![0, 1] bcast_S4x256_S4x256x1_0_1 : (⟨S4x256, .f32⟩ : BufTy).Contents (Elt F) → (⟨S4x256x1, .f32⟩ : BufTy).Contents (Elt F)),
    unary main_arg2 main_v5429 ((extractStridedSlice S4x1x16 ![0, 271, 0] · slices_S4x512x16_S4x1x16_0_271_0) : (⟨S4x512x16, .f32⟩ : BufTy).Contents (Elt F) → (⟨S4x1x16, .f32⟩ : BufTy).Contents (Elt F)),
    reshape main_v5429 main_v5430 rfl shapeCasts_S4x1x16_S4x16,
    unary main_v5430 main_v5431 (broadcastInDim S4x1x16 ![0, 2] bcast_S4x16_S4x1x16_0_2 : (⟨S4x16, .f32⟩ : BufTy).Contents (Elt F) → (⟨S4x1x16, .f32⟩ : BufTy).Contents (Elt F)),
    unary main_v5428 main_v5432 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5431 main_v5433 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5432 main_v5433 main_v5434 (mulf : (⟨S4x256x16, .f32⟩ : BufTy).Contents (Elt F) → (⟨S4x256x16, .f32⟩ : BufTy).Contents (Elt F) → (⟨S4x256x16, .f32⟩ : BufTy).Contents (Elt F)),
    binary main_v5425 main_v5434 main_v5435 (addf : (⟨S4x256x16, .f32⟩ : BufTy).Contents (Elt F) → (⟨S4x256x16, .f32⟩ : BufTy).Contents (Elt F) → (⟨S4x256x16, .f32⟩ : BufTy).Contents (Elt F)),
    unary main_arg3 main_v5436 ((extractStridedSlice S4x1x16 ![0, 271, 0] · slices_S4x512x16_S4x1x16_0_271_0) : (⟨S4x512x16, .f32⟩ : BufTy).Contents (Elt F) → (⟨S4x1x16, .f32⟩ : BufTy).Contents (Elt F)),
    reshape main_v5436 main_v5437 rfl shapeCasts_S4x1x16_S4x16,
    unary main_v5437 main_v5438 (broadcastInDim S4x1x16 ![0, 2] bcast_S4x16_S4x1x16_0_2 : (⟨S4x16, .f32⟩ : BufTy).Contents (Elt F) → (⟨S4x1x16, .f32⟩ : BufTy).Contents (Elt F)),
    unary main_v5438 main_v5439 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5435 main_v5439 main_v5440 (mulf : (⟨S4x256x16, .f32⟩ : BufTy).Contents (Elt F) → (⟨S4x256x16, .f32⟩ : BufTy).Contents (Elt F) → (⟨S4x256x16, .f32⟩ : BufTy).Contents (Elt F)),
    nullary main_cst_542 (constant S_ .f32 0x00000000#32),
    binary main_v5440 main_cst_542 main_v5441 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_543 (constantI S_ 32 271#32),
    unary main_c_543 main_v5442 (broadcastInDim S1 ![] bcast_S_S1 : (⟨S_, .i32⟩ : BufTy).Contents (Elt F) → (⟨S1, .i32⟩ : BufTy).Contents (Elt F)),
    ternary main_v5423 main_v5442 main_v5441 main_v5443 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps271_ok : (stepOps271 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step271_val (V : Valuation τ sig (Elt Ideal)) :
    after (stepOps271 (F := Ideal)) V (no_index (Proc.devRef .tc main_v5435)) = stepH 271 (by decide) (V (Proc.devRef .tc main_arg0)) (V (Proc.devRef .tc main_v3)) (V (Proc.devRef .tc main_arg2)) (V (Proc.devRef .tc main_v5415))
    ∧ after (stepOps271 (F := Ideal)) V (no_index (Proc.devRef .tc main_v5443)) = stepY 271 (by decide) (V (Proc.devRef .tc main_arg3)) (stepH 271 (by decide) (V (Proc.devRef .tc main_arg0)) (V (Proc.devRef .tc main_v3)) (V (Proc.devRef .tc main_arg2)) (V (Proc.devRef .tc main_v5415))) (V (Proc.devRef .tc main_v5423)) := by
  simp only [stepOps271]
  after_results_simp
  first | exact ⟨rfl, rfl⟩ | fail "value"

end Cert.ReferenceIdeal.RefRun

end
-- ==== Proof.RefTableStep17.lean ====
/-
  Steps 272 … 287 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 272 of the loop: operations 5991 … 6012 of the program. -/
abbrev stepOps272 : List (HloOp τ sig (Elt F)) :=
  [ unary main_v3 main_v5444 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5435 main_v5444 main_v5445 (mulf : (⟨S4x256x16, .f32⟩ : BufTy).Contents (Elt F) → (⟨S4x256x16, .f32⟩ : BufTy).Contents (Elt F) → (⟨S4x256x16, .f32⟩ : BufTy).Contents (Elt F)),
    unary main_arg0 main_v5446 ((extractStridedSlice S4x1x256 ![0, 272, 0] · slices_S4x512x256_S4x1x256_0_272_0) : (⟨S4x512x256, .f32⟩ : BufTy).Contents (Elt F) → (⟨S4x1x256, .f32⟩ : BufTy).Contents (Elt F)),
    reshape main_v5446 main_v5447 rfl shapeCasts_S4x1x256_S4x256,
    unary main_v5447 main_v5448 (broadcastInDim S4x256x1 ![0, 1] bcast_S4x256_S4x256x1_0_1 : (⟨S4x256, .f32⟩ : BufTy).Contents (Elt F) → (⟨S4x256x1, .f32⟩ : BufTy).Contents (Elt F)),
    unary main_arg2 main_v5449 ((extractStridedSlice S4x1x16 ![0, 272, 0] · slices_S4x512x16_S4x1x16_0_272_0) : (⟨S4x512x16, .f32⟩ : BufTy).Contents (Elt F) → (⟨S4x1x16, .f32⟩ : BufTy).Contents (Elt F)),
    reshape main_v5449 main_v5450 rfl shapeCasts_S4x1x16_S4x16,
    unary main_v5450 main_v5451 (broadcastInDim S4x1x16 ![0, 2] bcast_S4x16_S4x1x16_0_2 : (⟨S4x16, .f32⟩ : BufTy).Contents (Elt F) → (⟨S4x1x16, .f32⟩ : BufTy).Contents (Elt F)),
    unary main_v5448 main_v5452 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5451 main_v5453 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5452 main_v5453 main_v5454 (mulf : (⟨S4x256x16, .f32⟩ : BufTy).Contents (Elt F) → (⟨S4x256x16, .f32⟩ : BufTy).Contents (Elt F) → (⟨S4x256x16, .f32⟩ : BufTy).Contents (Elt F)),
    binary main_v5445 main_v5454 main_v5455 (addf : (⟨S4x256x16, .f32⟩ : BufTy).Contents (Elt F) → (⟨S4x256x16, .f32⟩ : BufTy).Contents (Elt F) → (⟨S4x256x16, .f32⟩ : BufTy).Contents (Elt F)),
    unary main_arg3 main_v5456 ((extractStridedSlice S4x1x16 ![0, 272, 0] · slices_S4x512x16_S4x1x16_0_272_0) : (⟨S4x512x16, .f32⟩ : BufTy).Contents (Elt F) → (⟨S4x1x16, .f32⟩ : BufTy).Contents (Elt F)),
    reshape main_v5456 main_v5457 rfl shapeCasts_S4x1x16_S4x16,
    unary main_v5457 main_v5458 (broadcastInDim S4x1x16 ![0, 2] bcast_S4x16_S4x1x16_0_2 : (⟨S4x16, .f32⟩ : BufTy).Contents (Elt F) → (⟨S4x1x16, .f32⟩ : BufTy).Contents (Elt F)),
    unary main_v5458 main_v5459 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5455 main_v5459 main_v5460 (mulf : (⟨S4x256x16, .f32⟩ : BufTy).Contents (Elt F) → (⟨S4x256x16, .f32⟩ : BufTy).Contents (Elt F) → (⟨S4x256x16, .f32⟩ : BufTy).Contents (Elt F)),
    nullary main_cst_544 (constant S_ .f32 0x00000000#32),
    binary main_v5460 main_cst_544 main_v5461 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_545 (constantI S_ 32 272#32),
    unary main_c_545 main_v5462 (broadcastInDim S1 ![] bcast_S_S1 : (⟨S_, .i32⟩ : BufTy).Contents (Elt F) → (⟨S1, .i32⟩ : BufTy).Contents (Elt F)),
    ternary main_v5443 main_v5462 main_v5461 main_v5463 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps272_ok : (stepOps272 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step272_val (V : Valuation τ sig (Elt Ideal)) :
    after (stepOps272 (F := Ideal)) V (no_index (Proc.devRef .tc main_v5455)) = stepH 272 (by decide) (V (Proc.devRef .tc main_arg0)) (V (Proc.devRef .tc main_v3)) (V (Proc.devRef .tc main_arg2)) (V (Proc.devRef .tc main_v5435))
    ∧ after (stepOps272 (F := Ideal)) V (no_index (Proc.devRef .tc main_v5463)) = stepY 272 (by decide) (V (Proc.devRef .tc main_arg3)) (stepH 272 (by decide) (V (Proc.devRef .tc main_arg0)) (V (Proc.devRef .tc main_v3)) (V (Proc.devRef .tc main_arg2)) (V (Proc.devRef .tc main_v5435))) (V (Proc.devRef .tc main_v5443)) := by
  simp only [stepOps272]
  after_results_simp
  first | exact ⟨rfl, rfl⟩ | fail "value"
/-- Step 273 of the loop: operations 6013 … 6034 of the program. -/
abbrev stepOps273 : List (HloOp τ sig (Elt F)) :=
  [ unary main_v3 main_v5464 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5455 main_v5464 main_v5465 (mulf : (⟨S4x256x16, .f32⟩ : BufTy).Contents (Elt F) → (⟨S4x256x16, .f32⟩ : BufTy).Contents (Elt F) → (⟨S4x256x16, .f32⟩ : BufTy).Contents (Elt F)),
    unary main_arg0 main_v5466 ((extractStridedSlice S4x1x256 ![0, 273, 0] · slices_S4x512x256_S4x1x256_0_273_0) : (⟨S4x512x256, .f32⟩ : BufTy).Contents (Elt F) → (⟨S4x1x256, .f32⟩ : BufTy).Contents (Elt F)),
    reshape main_v5466 main_v5467 rfl shapeCasts_S4x1x256_S4x256,
    unary main_v5467 main_v5468 (broadcastInDim S4x256x1 ![0, 1] bcast_S4x256_S4x256x1_0_1 : (⟨S4x256, .f32⟩ : BufTy).Contents (Elt F) → (⟨S4x256x1, .f32⟩ : BufTy).Contents (Elt F)),
    unary main_arg2 main_v5469 ((extractStridedSlice S4x1x16 ![0, 273, 0] · slices_S4x512x16_S4x1x16_0_273_0) : (⟨S4x512x16, .f32⟩ : BufTy).Contents (Elt F) → (⟨S4x1x16, .f32⟩ : BufTy).Contents (Elt F)),
    reshape main_v5469 main_v5470 rfl shapeCasts_S4x1x16_S4x16,
    unary main_v5470 main_v5471 (broadcastInDim S4x1x16 ![0, 2] bcast_S4x16_S4x1x16_0_2 : (⟨S4x16, .f32⟩ : BufTy).Contents (Elt F) → (⟨S4x1x16, .f32⟩ : BufTy).Contents (Elt F)),
    unary main_v5468 main_v5472 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5471 main_v5473 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5472 main_v5473 main_v5474 (mulf : (⟨S4x256x16, .f32⟩ : BufTy).Contents (Elt F) → (⟨S4x256x16, .f32⟩ : BufTy).Contents (Elt F) → (⟨S4x256x16, .f32⟩ : BufTy).Contents (Elt F)),
    binary main_v5465 main_v5474 main_v5475 (addf : (⟨S4x256x16, .f32⟩ : BufTy).Contents (Elt F) → (⟨S4x256x16, .f32⟩ : BufTy).Contents (Elt F) → (⟨S4x256x16, .f32⟩ : BufTy).Contents (Elt F)),
    unary main_arg3 main_v5476 ((extractStridedSlice S4x1x16 ![0, 273, 0] · slices_S4x512x16_S4x1x16_0_273_0) : (⟨S4x512x16, .f32⟩ : BufTy).Contents (Elt F) → (⟨S4x1x16, .f32⟩ : BufTy).Contents (Elt F)),
    reshape main_v5476 main_v5477 rfl shapeCasts_S4x1x16_S4x16,
    unary main_v5477 main_v5478 (broadcastInDim S4x1x16 ![0, 2] bcast_S4x16_S4x1x16_0_2 : (⟨S4x16, .f32⟩ : BufTy).Contents (Elt F) → (⟨S4x1x16, .f32⟩ : BufTy).Contents (Elt F)),
    unary main_v5478 main_v5479 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5475 main_v5479 main_v5480 (mulf : (⟨S4x256x16, .f32⟩ : BufTy).Contents (Elt F) → (⟨S4x256x16, .f32⟩ : BufTy).Contents (Elt F) → (⟨S4x256x16, .f32⟩ : BufTy).Contents (Elt F)),
    nullary main_cst_546 (constant S_ .f32 0x00000000#32),
    binary main_v5480 main_cst_546 main_v5481 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_547 (constantI S_ 32 273#32),
    unary main_c_547 main_v5482 (broadcastInDim S1 ![] bcast_S_S1 : (⟨S_, .i32⟩ : BufTy).Contents (Elt F) → (⟨S1, .i32⟩ : BufTy).Contents (Elt F)),
    ternary main_v5463 main_v5482 main_v5481 main_v5483 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps273_ok : (stepOps273 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step273_val (V : Valuation τ sig (Elt Ideal)) :
    after (stepOps273 (F := Ideal)) V (no_index (Proc.devRef .tc main_v5475)) = stepH 273 (by decide) (V (Proc.devRef .tc main_arg0)) (V (Proc.devRef .tc main_v3)) (V (Proc.devRef .tc main_arg2)) (V (Proc.devRef .tc main_v5455))
    ∧ after (stepOps273 (F := Ideal)) V (no_index (Proc.devRef .tc main_v5483)) = stepY 273 (by decide) (V (Proc.devRef .tc main_arg3)) (stepH 273 (by decide) (V (Proc.devRef .tc main_arg0)) (V (Proc.devRef .tc main_v3)) (V (Proc.devRef .tc main_arg2)) (V (Proc.devRef .tc main_v5455))) (V (Proc.devRef .tc main_v5463)) := by
  simp only [stepOps273]
  after_results_simp
  first | exact ⟨rfl, rfl⟩ | fail "value"
/-- Step 274 of the loop: operations 6035 … 6056 of the program. -/
abbrev stepOps274 : List (HloOp τ sig (Elt F)) :=
  [ unary main_v3 main_v5484 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5475 main_v5484 main_v5485 (mulf : (⟨S4x256x16, .f32⟩ : BufTy).Contents (Elt F) → (⟨S4x256x16, .f32⟩ : BufTy).Contents (Elt F) → (⟨S4x256x16, .f32⟩ : BufTy).Contents (Elt F)),
    unary main_arg0 main_v5486 ((extractStridedSlice S4x1x256 ![0, 274, 0] · slices_S4x512x256_S4x1x256_0_274_0) : (⟨S4x512x256, .f32⟩ : BufTy).Contents (Elt F) → (⟨S4x1x256, .f32⟩ : BufTy).Contents (Elt F)),
    reshape main_v5486 main_v5487 rfl shapeCasts_S4x1x256_S4x256,
    unary main_v5487 main_v5488 (broadcastInDim S4x256x1 ![0, 1] bcast_S4x256_S4x256x1_0_1 : (⟨S4x256, .f32⟩ : BufTy).Contents (Elt F) → (⟨S4x256x1, .f32⟩ : BufTy).Contents (Elt F)),
    unary main_arg2 main_v5489 ((extractStridedSlice S4x1x16 ![0, 274, 0] · slices_S4x512x16_S4x1x16_0_274_0) : (⟨S4x512x16, .f32⟩ : BufTy).Contents (Elt F) → (⟨S4x1x16, .f32⟩ : BufTy).Contents (Elt F)),
    reshape main_v5489 main_v5490 rfl shapeCasts_S4x1x16_S4x16,
    unary main_v5490 main_v5491 (broadcastInDim S4x1x16 ![0, 2] bcast_S4x16_S4x1x16_0_2 : (⟨S4x16, .f32⟩ : BufTy).Contents (Elt F) → (⟨S4x1x16, .f32⟩ : BufTy).Contents (Elt F)),
    unary main_v5488 main_v5492 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5491 main_v5493 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5492 main_v5493 main_v5494 (mulf : (⟨S4x256x16, .f32⟩ : BufTy).Contents (Elt F) → (⟨S4x256x16, .f32⟩ : BufTy).Contents (Elt F) → (⟨S4x256x16, .f32⟩ : BufTy).Contents (Elt F)),
    binary main_v5485 main_v5494 main_v5495 (addf : (⟨S4x256x16, .f32⟩ : BufTy).Contents (Elt F) → (⟨S4x256x16, .f32⟩ : BufTy).Contents (Elt F) → (⟨S4x256x16, .f32⟩ : BufTy).Contents (Elt F)),
    unary main_arg3 main_v5496 ((extractStridedSlice S4x1x16 ![0, 274, 0] · slices_S4x512x16_S4x1x16_0_274_0) : (⟨S4x512x16, .f32⟩ : BufTy).Contents (Elt F) → (⟨S4x1x16, .f32⟩ : BufTy).Contents (Elt F)),
    reshape main_v5496 main_v5497 rfl shapeCasts_S4x1x16_S4x16,
    unary main_v5497 main_v5498 (broadcastInDim S4x1x16 ![0, 2] bcast_S4x16_S4x1x16_0_2 : (⟨S4x16, .f32⟩ : BufTy).Contents (Elt F) → (⟨S4x1x16, .f32⟩ : BufTy).Contents (Elt F)),
    unary main_v5498 main_v5499 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5495 main_v5499 main_v5500 (mulf : (⟨S4x256x16, .f32⟩ : BufTy).Contents (Elt F) → (⟨S4x256x16, .f32⟩ : BufTy).Contents (Elt F) → (⟨S4x256x16, .f32⟩ : BufTy).Contents (Elt F)),
    nullary main_cst_548 (constant S_ .f32 0x00000000#32),
    binary main_v5500 main_cst_548 main_v5501 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_549 (constantI S_ 32 274#32),
    unary main_c_549 main_v5502 (broadcastInDim S1 ![] bcast_S_S1 : (⟨S_, .i32⟩ : BufTy).Contents (Elt F) → (⟨S1, .i32⟩ : BufTy).Contents (Elt F)),
    ternary main_v5483 main_v5502 main_v5501 main_v5503 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps274_ok : (stepOps274 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step274_val (V : Valuation τ sig (Elt Ideal)) :
    after (stepOps274 (F := Ideal)) V (no_index (Proc.devRef .tc main_v5495)) = stepH 274 (by decide) (V (Proc.devRef .tc main_arg0)) (V (Proc.devRef .tc main_v3)) (V (Proc.devRef .tc main_arg2)) (V (Proc.devRef .tc main_v5475))
    ∧ after (stepOps274 (F := Ideal)) V (no_index (Proc.devRef .tc main_v5503)) = stepY 274 (by decide) (V (Proc.devRef .tc main_arg3)) (stepH 274 (by decide) (V (Proc.devRef .tc main_arg0)) (V (Proc.devRef .tc main_v3)) (V (Proc.devRef .tc main_arg2)) (V (Proc.devRef .tc main_v5475))) (V (Proc.devRef .tc main_v5483)) := by
  simp only [stepOps274]
  after_results_simp
  first | exact ⟨rfl, rfl⟩ | fail "value"
/-- Step 275 of the loop: operations 6057 … 6078 of the program. -/
abbrev stepOps275 : List (HloOp τ sig (Elt F)) :=
  [ unary main_v3 main_v5504 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5495 main_v5504 main_v5505 (mulf : (⟨S4x256x16, .f32⟩ : BufTy).Contents (Elt F) → (⟨S4x256x16, .f32⟩ : BufTy).Contents (Elt F) → (⟨S4x256x16, .f32⟩ : BufTy).Contents (Elt F)),
    unary main_arg0 main_v5506 ((extractStridedSlice S4x1x256 ![0, 275, 0] · slices_S4x512x256_S4x1x256_0_275_0) : (⟨S4x512x256, .f32⟩ : BufTy).Contents (Elt F) → (⟨S4x1x256, .f32⟩ : BufTy).Contents (Elt F)),
    reshape main_v5506 main_v5507 rfl shapeCasts_S4x1x256_S4x256,
    unary main_v5507 main_v5508 (broadcastInDim S4x256x1 ![0, 1] bcast_S4x256_S4x256x1_0_1 : (⟨S4x256, .f32⟩ : BufTy).Contents (Elt F) → (⟨S4x256x1, .f32⟩ : BufTy).Contents (Elt F)),
    unary main_arg2 main_v5509 ((extractStridedSlice S4x1x16 ![0, 275, 0] · slices_S4x512x16_S4x1x16_0_275_0) : (⟨S4x512x16, .f32⟩ : BufTy).Contents (Elt F) → (⟨S4x1x16, .f32⟩ : BufTy).Contents (Elt F)),
    reshape main_v5509 main_v5510 rfl shapeCasts_S4x1x16_S4x16,
    unary main_v5510 main_v5511 (broadcastInDim S4x1x16 ![0, 2] bcast_S4x16_S4x1x16_0_2 : (⟨S4x16, .f32⟩ : BufTy).Contents (Elt F) → (⟨S4x1x16, .f32⟩ : BufTy).Contents (Elt F)),
    unary main_v5508 main_v5512 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5511 main_v5513 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5512 main_v5513 main_v5514 (mulf : (⟨S4x256x16, .f32⟩ : BufTy).Contents (Elt F) → (⟨S4x256x16, .f32⟩ : BufTy).Contents (Elt F) → (⟨S4x256x16, .f32⟩ : BufTy).Contents (Elt F)),
    binary main_v5505 main_v5514 main_v5515 (addf : (⟨S4x256x16, .f32⟩ : BufTy).Contents (Elt F) → (⟨S4x256x16, .f32⟩ : BufTy).Contents (Elt F) → (⟨S4x256x16, .f32⟩ : BufTy).Contents (Elt F)),
    unary main_arg3 main_v5516 ((extractStridedSlice S4x1x16 ![0, 275, 0] · slices_S4x512x16_S4x1x16_0_275_0) : (⟨S4x512x16, .f32⟩ : BufTy).Contents (Elt F) → (⟨S4x1x16, .f32⟩ : BufTy).Contents (Elt F)),
    reshape main_v5516 main_v5517 rfl shapeCasts_S4x1x16_S4x16,
    unary main_v5517 main_v5518 (broadcastInDim S4x1x16 ![0, 2] bcast_S4x16_S4x1x16_0_2 : (⟨S4x16, .f32⟩ : BufTy).Contents (Elt F) → (⟨S4x1x16, .f32⟩ : BufTy).Contents (Elt F)),
    unary main_v5518 main_v5519 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5515 main_v5519 main_v5520 (mulf : (⟨S4x256x16, .f32⟩ : BufTy).Contents (Elt F) → (⟨S4x256x16, .f32⟩ : BufTy).Contents (Elt F) → (⟨S4x256x16, .f32⟩ : BufTy).Contents (Elt F)),
    nullary main_cst_550 (constant S_ .f32 0x00000000#32),
    binary main_v5520 main_cst_550 main_v5521 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_551 (constantI S_ 32 275#32),
    unary main_c_551 main_v5522 (broadcastInDim S1 ![] bcast_S_S1 : (⟨S_, .i32⟩ : BufTy).Contents (Elt F) → (⟨S1, .i32⟩ : BufTy).Contents (Elt F)),
    ternary main_v5503 main_v5522 main_v5521 main_v5523 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps275_ok : (stepOps275 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step275_val (V : Valuation τ sig (Elt Ideal)) :
    after (stepOps275 (F := Ideal)) V (no_index (Proc.devRef .tc main_v5515)) = stepH 275 (by decide) (V (Proc.devRef .tc main_arg0)) (V (Proc.devRef .tc main_v3)) (V (Proc.devRef .tc main_arg2)) (V (Proc.devRef .tc main_v5495))
    ∧ after (stepOps275 (F := Ideal)) V (no_index (Proc.devRef .tc main_v5523)) = stepY 275 (by decide) (V (Proc.devRef .tc main_arg3)) (stepH 275 (by decide) (V (Proc.devRef .tc main_arg0)) (V (Proc.devRef .tc main_v3)) (V (Proc.devRef .tc main_arg2)) (V (Proc.devRef .tc main_v5495))) (V (Proc.devRef .tc main_v5503)) := by
  simp only [stepOps275]
  after_results_simp
  first | exact ⟨rfl, rfl⟩ | fail "value"
/-- Step 276 of the loop: operations 6079 … 6100 of the program. -/
abbrev stepOps276 : List (HloOp τ sig (Elt F)) :=
  [ unary main_v3 main_v5524 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5515 main_v5524 main_v5525 (mulf : (⟨S4x256x16, .f32⟩ : BufTy).Contents (Elt F) → (⟨S4x256x16, .f32⟩ : BufTy).Contents (Elt F) → (⟨S4x256x16, .f32⟩ : BufTy).Contents (Elt F)),
    unary main_arg0 main_v5526 ((extractStridedSlice S4x1x256 ![0, 276, 0] · slices_S4x512x256_S4x1x256_0_276_0) : (⟨S4x512x256, .f32⟩ : BufTy).Contents (Elt F) → (⟨S4x1x256, .f32⟩ : BufTy).Contents (Elt F)),
    reshape main_v5526 main_v5527 rfl shapeCasts_S4x1x256_S4x256,
    unary main_v5527 main_v5528 (broadcastInDim S4x256x1 ![0, 1] bcast_S4x256_S4x256x1_0_1 : (⟨S4x256, .f32⟩ : BufTy).Contents (Elt F) → (⟨S4x256x1, .f32⟩ : BufTy).Contents (Elt F)),
    unary main_arg2 main_v5529 ((extractStridedSlice S4x1x16 ![0, 276, 0] · slices_S4x512x16_S4x1x16_0_276_0) : (⟨S4x512x16, .f32⟩ : BufTy).Contents (Elt F) → (⟨S4x1x16, .f32⟩ : BufTy).Contents (Elt F)),
    reshape main_v5529 main_v5530 rfl shapeCasts_S4x1x16_S4x16,
    unary main_v5530 main_v5531 (broadcastInDim S4x1x16 ![0, 2] bcast_S4x16_S4x1x16_0_2 : (⟨S4x16, .f32⟩ : BufTy).Contents (Elt F) → (⟨S4x1x16, .f32⟩ : BufTy).Contents (Elt F)),
    unary main_v5528 main_v5532 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5531 main_v5533 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5532 main_v5533 main_v5534 (mulf : (⟨S4x256x16, .f32⟩ : BufTy).Contents (Elt F) → (⟨S4x256x16, .f32⟩ : BufTy).Contents (Elt F) → (⟨S4x256x16, .f32⟩ : BufTy).Contents (Elt F)),
    binary main_v5525 main_v5534 main_v5535 (addf : (⟨S4x256x16, .f32⟩ : BufTy).Contents (Elt F) → (⟨S4x256x16, .f32⟩ : BufTy).Contents (Elt F) → (⟨S4x256x16, .f32⟩ : BufTy).Contents (Elt F)),
    unary main_arg3 main_v5536 ((extractStridedSlice S4x1x16 ![0, 276, 0] · slices_S4x512x16_S4x1x16_0_276_0) : (⟨S4x512x16, .f32⟩ : BufTy).Contents (Elt F) → (⟨S4x1x16, .f32⟩ : BufTy).Contents (Elt F)),
    reshape main_v5536 main_v5537 rfl shapeCasts_S4x1x16_S4x16,
    unary main_v5537 main_v5538 (broadcastInDim S4x1x16 ![0, 2] bcast_S4x16_S4x1x16_0_2 : (⟨S4x16, .f32⟩ : BufTy).Contents (Elt F) → (⟨S4x1x16, .f32⟩ : BufTy).Contents (Elt F)),
    unary main_v5538 main_v5539 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5535 main_v5539 main_v5540 (mulf : (⟨S4x256x16, .f32⟩ : BufTy).Contents (Elt F) → (⟨S4x256x16, .f32⟩ : BufTy).Contents (Elt F) → (⟨S4x256x16, .f32⟩ : BufTy).Contents (Elt F)),
    nullary main_cst_552 (constant S_ .f32 0x00000000#32),
    binary main_v5540 main_cst_552 main_v5541 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_553 (constantI S_ 32 276#32),
    unary main_c_553 main_v5542 (broadcastInDim S1 ![] bcast_S_S1 : (⟨S_, .i32⟩ : BufTy).Contents (Elt F) → (⟨S1, .i32⟩ : BufTy).Contents (Elt F)),
    ternary main_v5523 main_v5542 main_v5541 main_v5543 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps276_ok : (stepOps276 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step276_val (V : Valuation τ sig (Elt Ideal)) :
    after (stepOps276 (F := Ideal)) V (no_index (Proc.devRef .tc main_v5535)) = stepH 276 (by decide) (V (Proc.devRef .tc main_arg0)) (V (Proc.devRef .tc main_v3)) (V (Proc.devRef .tc main_arg2)) (V (Proc.devRef .tc main_v5515))
    ∧ after (stepOps276 (F := Ideal)) V (no_index (Proc.devRef .tc main_v5543)) = stepY 276 (by decide) (V (Proc.devRef .tc main_arg3)) (stepH 276 (by decide) (V (Proc.devRef .tc main_arg0)) (V (Proc.devRef .tc main_v3)) (V (Proc.devRef .tc main_arg2)) (V (Proc.devRef .tc main_v5515))) (V (Proc.devRef .tc main_v5523)) := by
  simp only [stepOps276]
  after_results_simp
  first | exact ⟨rfl, rfl⟩ | fail "value"
/-- Step 277 of the loop: operations 6101 … 6122 of the program. -/
abbrev stepOps277 : List (HloOp τ sig (Elt F)) :=
  [ unary main_v3 main_v5544 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5535 main_v5544 main_v5545 (mulf : (⟨S4x256x16, .f32⟩ : BufTy).Contents (Elt F) → (⟨S4x256x16, .f32⟩ : BufTy).Contents (Elt F) → (⟨S4x256x16, .f32⟩ : BufTy).Contents (Elt F)),
    unary main_arg0 main_v5546 ((extractStridedSlice S4x1x256 ![0, 277, 0] · slices_S4x512x256_S4x1x256_0_277_0) : (⟨S4x512x256, .f32⟩ : BufTy).Contents (Elt F) → (⟨S4x1x256, .f32⟩ : BufTy).Contents (Elt F)),
    reshape main_v5546 main_v5547 rfl shapeCasts_S4x1x256_S4x256,
    unary main_v5547 main_v5548 (broadcastInDim S4x256x1 ![0, 1] bcast_S4x256_S4x256x1_0_1 : (⟨S4x256, .f32⟩ : BufTy).Contents (Elt F) → (⟨S4x256x1, .f32⟩ : BufTy).Contents (Elt F)),
    unary main_arg2 main_v5549 ((extractStridedSlice S4x1x16 ![0, 277, 0] · slices_S4x512x16_S4x1x16_0_277_0) : (⟨S4x512x16, .f32⟩ : BufTy).Contents (Elt F) → (⟨S4x1x16, .f32⟩ : BufTy).Contents (Elt F)),
    reshape main_v5549 main_v5550 rfl shapeCasts_S4x1x16_S4x16,
    unary main_v5550 main_v5551 (broadcastInDim S4x1x16 ![0, 2] bcast_S4x16_S4x1x16_0_2 : (⟨S4x16, .f32⟩ : BufTy).Contents (Elt F) → (⟨S4x1x16, .f32⟩ : BufTy).Contents (Elt F)),
    unary main_v5548 main_v5552 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5551 main_v5553 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5552 main_v5553 main_v5554 (mulf : (⟨S4x256x16, .f32⟩ : BufTy).Contents (Elt F) → (⟨S4x256x16, .f32⟩ : BufTy).Contents (Elt F) → (⟨S4x256x16, .f32⟩ : BufTy).Contents (Elt F)),
    binary main_v5545 main_v5554 main_v5555 (addf : (⟨S4x256x16, .f32⟩ : BufTy).Contents (Elt F) → (⟨S4x256x16, .f32⟩ : BufTy).Contents (Elt F) → (⟨S4x256x16, .f32⟩ : BufTy).Contents (Elt F)),
    unary main_arg3 main_v5556 ((extractStridedSlice S4x1x16 ![0, 277, 0] · slices_S4x512x16_S4x1x16_0_277_0) : (⟨S4x512x16, .f32⟩ : BufTy).Contents (Elt F) → (⟨S4x1x16, .f32⟩ : BufTy).Contents (Elt F)),
    reshape main_v5556 main_v5557 rfl shapeCasts_S4x1x16_S4x16,
    unary main_v5557 main_v5558 (broadcastInDim S4x1x16 ![0, 2] bcast_S4x16_S4x1x16_0_2 : (⟨S4x16, .f32⟩ : BufTy).Contents (Elt F) → (⟨S4x1x16, .f32⟩ : BufTy).Contents (Elt F)),
    unary main_v5558 main_v5559 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5555 main_v5559 main_v5560 (mulf : (⟨S4x256x16, .f32⟩ : BufTy).Contents (Elt F) → (⟨S4x256x16, .f32⟩ : BufTy).Contents (Elt F) → (⟨S4x256x16, .f32⟩ : BufTy).Contents (Elt F)),
    nullary main_cst_554 (constant S_ .f32 0x00000000#32),
    binary main_v5560 main_cst_554 main_v5561 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_555 (constantI S_ 32 277#32),
    unary main_c_555 main_v5562 (broadcastInDim S1 ![] bcast_S_S1 : (⟨S_, .i32⟩ : BufTy).Contents (Elt F) → (⟨S1, .i32⟩ : BufTy).Contents (Elt F)),
    ternary main_v5543 main_v5562 main_v5561 main_v5563 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps277_ok : (stepOps277 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step277_val (V : Valuation τ sig (Elt Ideal)) :
    after (stepOps277 (F := Ideal)) V (no_index (Proc.devRef .tc main_v5555)) = stepH 277 (by decide) (V (Proc.devRef .tc main_arg0)) (V (Proc.devRef .tc main_v3)) (V (Proc.devRef .tc main_arg2)) (V (Proc.devRef .tc main_v5535))
    ∧ after (stepOps277 (F := Ideal)) V (no_index (Proc.devRef .tc main_v5563)) = stepY 277 (by decide) (V (Proc.devRef .tc main_arg3)) (stepH 277 (by decide) (V (Proc.devRef .tc main_arg0)) (V (Proc.devRef .tc main_v3)) (V (Proc.devRef .tc main_arg2)) (V (Proc.devRef .tc main_v5535))) (V (Proc.devRef .tc main_v5543)) := by
  simp only [stepOps277]
  after_results_simp
  first | exact ⟨rfl, rfl⟩ | fail "value"
/-- Step 278 of the loop: operations 6123 … 6144 of the program. -/
abbrev stepOps278 : List (HloOp τ sig (Elt F)) :=
  [ unary main_v3 main_v5564 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5555 main_v5564 main_v5565 (mulf : (⟨S4x256x16, .f32⟩ : BufTy).Contents (Elt F) → (⟨S4x256x16, .f32⟩ : BufTy).Contents (Elt F) → (⟨S4x256x16, .f32⟩ : BufTy).Contents (Elt F)),
    unary main_arg0 main_v5566 ((extractStridedSlice S4x1x256 ![0, 278, 0] · slices_S4x512x256_S4x1x256_0_278_0) : (⟨S4x512x256, .f32⟩ : BufTy).Contents (Elt F) → (⟨S4x1x256, .f32⟩ : BufTy).Contents (Elt F)),
    reshape main_v5566 main_v5567 rfl shapeCasts_S4x1x256_S4x256,
    unary main_v5567 main_v5568 (broadcastInDim S4x256x1 ![0, 1] bcast_S4x256_S4x256x1_0_1 : (⟨S4x256, .f32⟩ : BufTy).Contents (Elt F) → (⟨S4x256x1, .f32⟩ : BufTy).Contents (Elt F)),
    unary main_arg2 main_v5569 ((extractStridedSlice S4x1x16 ![0, 278, 0] · slices_S4x512x16_S4x1x16_0_278_0) : (⟨S4x512x16, .f32⟩ : BufTy).Contents (Elt F) → (⟨S4x1x16, .f32⟩ : BufTy).Contents (Elt F)),
    reshape main_v5569 main_v5570 rfl shapeCasts_S4x1x16_S4x16,
    unary main_v5570 main_v5571 (broadcastInDim S4x1x16 ![0, 2] bcast_S4x16_S4x1x16_0_2 : (⟨S4x16, .f32⟩ : BufTy).Contents (Elt F) → (⟨S4x1x16, .f32⟩ : BufTy).Contents (Elt F)),
    unary main_v5568 main_v5572 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5571 main_v5573 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5572 main_v5573 main_v5574 (mulf : (⟨S4x256x16, .f32⟩ : BufTy).Contents (Elt F) → (⟨S4x256x16, .f32⟩ : BufTy).Contents (Elt F) → (⟨S4x256x16, .f32⟩ : BufTy).Contents (Elt F)),
    binary main_v5565 main_v5574 main_v5575 (addf : (⟨S4x256x16, .f32⟩ : BufTy).Contents (Elt F) → (⟨S4x256x16, .f32⟩ : BufTy).Contents (Elt F) → (⟨S4x256x16, .f32⟩ : BufTy).Contents (Elt F)),
    unary main_arg3 main_v5576 ((extractStridedSlice S4x1x16 ![0, 278, 0] · slices_S4x512x16_S4x1x16_0_278_0) : (⟨S4x512x16, .f32⟩ : BufTy).Contents (Elt F) → (⟨S4x1x16, .f32⟩ : BufTy).Contents (Elt F)),
    reshape main_v5576 main_v5577 rfl shapeCasts_S4x1x16_S4x16,
    unary main_v5577 main_v5578 (broadcastInDim S4x1x16 ![0, 2] bcast_S4x16_S4x1x16_0_2 : (⟨S4x16, .f32⟩ : BufTy).Contents (Elt F) → (⟨S4x1x16, .f32⟩ : BufTy).Contents (Elt F)),
    unary main_v5578 main_v5579 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5575 main_v5579 main_v5580 (mulf : (⟨S4x256x16, .f32⟩ : BufTy).Contents (Elt F) → (⟨S4x256x16, .f32⟩ : BufTy).Contents (Elt F) → (⟨S4x256x16, .f32⟩ : BufTy).Contents (Elt F)),
    nullary main_cst_556 (constant S_ .f32 0x00000000#32),
    binary main_v5580 main_cst_556 main_v5581 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_557 (constantI S_ 32 278#32),
    unary main_c_557 main_v5582 (broadcastInDim S1 ![] bcast_S_S1 : (⟨S_, .i32⟩ : BufTy).Contents (Elt F) → (⟨S1, .i32⟩ : BufTy).Contents (Elt F)),
    ternary main_v5563 main_v5582 main_v5581 main_v5583 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps278_ok : (stepOps278 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step278_val (V : Valuation τ sig (Elt Ideal)) :
    after (stepOps278 (F := Ideal)) V (no_index (Proc.devRef .tc main_v5575)) = stepH 278 (by decide) (V (Proc.devRef .tc main_arg0)) (V (Proc.devRef .tc main_v3)) (V (Proc.devRef .tc main_arg2)) (V (Proc.devRef .tc main_v5555))
    ∧ after (stepOps278 (F := Ideal)) V (no_index (Proc.devRef .tc main_v5583)) = stepY 278 (by decide) (V (Proc.devRef .tc main_arg3)) (stepH 278 (by decide) (V (Proc.devRef .tc main_arg0)) (V (Proc.devRef .tc main_v3)) (V (Proc.devRef .tc main_arg2)) (V (Proc.devRef .tc main_v5555))) (V (Proc.devRef .tc main_v5563)) := by
  simp only [stepOps278]
  after_results_simp
  first | exact ⟨rfl, rfl⟩ | fail "value"
/-- Step 279 of the loop: operations 6145 … 6166 of the program. -/
abbrev stepOps279 : List (HloOp τ sig (Elt F)) :=
  [ unary main_v3 main_v5584 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5575 main_v5584 main_v5585 (mulf : (⟨S4x256x16, .f32⟩ : BufTy).Contents (Elt F) → (⟨S4x256x16, .f32⟩ : BufTy).Contents (Elt F) → (⟨S4x256x16, .f32⟩ : BufTy).Contents (Elt F)),
    unary main_arg0 main_v5586 ((extractStridedSlice S4x1x256 ![0, 279, 0] · slices_S4x512x256_S4x1x256_0_279_0) : (⟨S4x512x256, .f32⟩ : BufTy).Contents (Elt F) → (⟨S4x1x256, .f32⟩ : BufTy).Contents (Elt F)),
    reshape main_v5586 main_v5587 rfl shapeCasts_S4x1x256_S4x256,
    unary main_v5587 main_v5588 (broadcastInDim S4x256x1 ![0, 1] bcast_S4x256_S4x256x1_0_1 : (⟨S4x256, .f32⟩ : BufTy).Contents (Elt F) → (⟨S4x256x1, .f32⟩ : BufTy).Contents (Elt F)),
    unary main_arg2 main_v5589 ((extractStridedSlice S4x1x16 ![0, 279, 0] · slices_S4x512x16_S4x1x16_0_279_0) : (⟨S4x512x16, .f32⟩ : BufTy).Contents (Elt F) → (⟨S4x1x16, .f32⟩ : BufTy).Contents (Elt F)),
    reshape main_v5589 main_v5590 rfl shapeCasts_S4x1x16_S4x16,
    unary main_v5590 main_v5591 (broadcastInDim S4x1x16 ![0, 2] bcast_S4x16_S4x1x16_0_2 : (⟨S4x16, .f32⟩ : BufTy).Contents (Elt F) → (⟨S4x1x16, .f32⟩ : BufTy).Contents (Elt F)),
    unary main_v5588 main_v5592 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5591 main_v5593 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5592 main_v5593 main_v5594 (mulf : (⟨S4x256x16, .f32⟩ : BufTy).Contents (Elt F) → (⟨S4x256x16, .f32⟩ : BufTy).Contents (Elt F) → (⟨S4x256x16, .f32⟩ : BufTy).Contents (Elt F)),
    binary main_v5585 main_v5594 main_v5595 (addf : (⟨S4x256x16, .f32⟩ : BufTy).Contents (Elt F) → (⟨S4x256x16, .f32⟩ : BufTy).Contents (Elt F) → (⟨S4x256x16, .f32⟩ : BufTy).Contents (Elt F)),
    unary main_arg3 main_v5596 ((extractStridedSlice S4x1x16 ![0, 279, 0] · slices_S4x512x16_S4x1x16_0_279_0) : (⟨S4x512x16, .f32⟩ : BufTy).Contents (Elt F) → (⟨S4x1x16, .f32⟩ : BufTy).Contents (Elt F)),
    reshape main_v5596 main_v5597 rfl shapeCasts_S4x1x16_S4x16,
    unary main_v5597 main_v5598 (broadcastInDim S4x1x16 ![0, 2] bcast_S4x16_S4x1x16_0_2 : (⟨S4x16, .f32⟩ : BufTy).Contents (Elt F) → (⟨S4x1x16, .f32⟩ : BufTy).Contents (Elt F)),
    unary main_v5598 main_v5599 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5595 main_v5599 main_v5600 (mulf : (⟨S4x256x16, .f32⟩ : BufTy).Contents (Elt F) → (⟨S4x256x16, .f32⟩ : BufTy).Contents (Elt F) → (⟨S4x256x16, .f32⟩ : BufTy).Contents (Elt F)),
    nullary main_cst_558 (constant S_ .f32 0x00000000#32),
    binary main_v5600 main_cst_558 main_v5601 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_559 (constantI S_ 32 279#32),
    unary main_c_559 main_v5602 (broadcastInDim S1 ![] bcast_S_S1 : (⟨S_, .i32⟩ : BufTy).Contents (Elt F) → (⟨S1, .i32⟩ : BufTy).Contents (Elt F)),
    ternary main_v5583 main_v5602 main_v5601 main_v5603 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps279_ok : (stepOps279 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step279_val (V : Valuation τ sig (Elt Ideal)) :
    after (stepOps279 (F := Ideal)) V (no_index (Proc.devRef .tc main_v5595)) = stepH 279 (by decide) (V (Proc.devRef .tc main_arg0)) (V (Proc.devRef .tc main_v3)) (V (Proc.devRef .tc main_arg2)) (V (Proc.devRef .tc main_v5575))
    ∧ after (stepOps279 (F := Ideal)) V (no_index (Proc.devRef .tc main_v5603)) = stepY 279 (by decide) (V (Proc.devRef .tc main_arg3)) (stepH 279 (by decide) (V (Proc.devRef .tc main_arg0)) (V (Proc.devRef .tc main_v3)) (V (Proc.devRef .tc main_arg2)) (V (Proc.devRef .tc main_v5575))) (V (Proc.devRef .tc main_v5583)) := by
  simp only [stepOps279]
  after_results_simp
  first | exact ⟨rfl, rfl⟩ | fail "value"
/-- Step 280 of the loop: operations 6167 … 6188 of the program. -/
abbrev stepOps280 : List (HloOp τ sig (Elt F)) :=
  [ unary main_v3 main_v5604 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5595 main_v5604 main_v5605 (mulf : (⟨S4x256x16, .f32⟩ : BufTy).Contents (Elt F) → (⟨S4x256x16, .f32⟩ : BufTy).Contents (Elt F) → (⟨S4x256x16, .f32⟩ : BufTy).Contents (Elt F)),
    unary main_arg0 main_v5606 ((extractStridedSlice S4x1x256 ![0, 280, 0] · slices_S4x512x256_S4x1x256_0_280_0) : (⟨S4x512x256, .f32⟩ : BufTy).Contents (Elt F) → (⟨S4x1x256, .f32⟩ : BufTy).Contents (Elt F)),
    reshape main_v5606 main_v5607 rfl shapeCasts_S4x1x256_S4x256,
    unary main_v5607 main_v5608 (broadcastInDim S4x256x1 ![0, 1] bcast_S4x256_S4x256x1_0_1 : (⟨S4x256, .f32⟩ : BufTy).Contents (Elt F) → (⟨S4x256x1, .f32⟩ : BufTy).Contents (Elt F)),
    unary main_arg2 main_v5609 ((extractStridedSlice S4x1x16 ![0, 280, 0] · slices_S4x512x16_S4x1x16_0_280_0) : (⟨S4x512x16, .f32⟩ : BufTy).Contents (Elt F) → (⟨S4x1x16, .f32⟩ : BufTy).Contents (Elt F)),
    reshape main_v5609 main_v5610 rfl shapeCasts_S4x1x16_S4x16,
    unary main_v5610 main_v5611 (broadcastInDim S4x1x16 ![0, 2] bcast_S4x16_S4x1x16_0_2 : (⟨S4x16, .f32⟩ : BufTy).Contents (Elt F) → (⟨S4x1x16, .f32⟩ : BufTy).Contents (Elt F)),
    unary main_v5608 main_v5612 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5611 main_v5613 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5612 main_v5613 main_v5614 (mulf : (⟨S4x256x16, .f32⟩ : BufTy).Contents (Elt F) → (⟨S4x256x16, .f32⟩ : BufTy).Contents (Elt F) → (⟨S4x256x16, .f32⟩ : BufTy).Contents (Elt F)),
    binary main_v5605 main_v5614 main_v5615 (addf : (⟨S4x256x16, .f32⟩ : BufTy).Contents (Elt F) → (⟨S4x256x16, .f32⟩ : BufTy).Contents (Elt F) → (⟨S4x256x16, .f32⟩ : BufTy).Contents (Elt F)),
    unary main_arg3 main_v5616 ((extractStridedSlice S4x1x16 ![0, 280, 0] · slices_S4x512x16_S4x1x16_0_280_0) : (⟨S4x512x16, .f32⟩ : BufTy).Contents (Elt F) → (⟨S4x1x16, .f32⟩ : BufTy).Contents (Elt F)),
    reshape main_v5616 main_v5617 rfl shapeCasts_S4x1x16_S4x16,
    unary main_v5617 main_v5618 (broadcastInDim S4x1x16 ![0, 2] bcast_S4x16_S4x1x16_0_2 : (⟨S4x16, .f32⟩ : BufTy).Contents (Elt F) → (⟨S4x1x16, .f32⟩ : BufTy).Contents (Elt F)),
    unary main_v5618 main_v5619 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5615 main_v5619 main_v5620 (mulf : (⟨S4x256x16, .f32⟩ : BufTy).Contents (Elt F) → (⟨S4x256x16, .f32⟩ : BufTy).Contents (Elt F) → (⟨S4x256x16, .f32⟩ : BufTy).Contents (Elt F)),
    nullary main_cst_560 (constant S_ .f32 0x00000000#32),
    binary main_v5620 main_cst_560 main_v5621 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_561 (constantI S_ 32 280#32),
    unary main_c_561 main_v5622 (broadcastInDim S1 ![] bcast_S_S1 : (⟨S_, .i32⟩ : BufTy).Contents (Elt F) → (⟨S1, .i32⟩ : BufTy).Contents (Elt F)),
    ternary main_v5603 main_v5622 main_v5621 main_v5623 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps280_ok : (stepOps280 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step280_val (V : Valuation τ sig (Elt Ideal)) :
    after (stepOps280 (F := Ideal)) V (no_index (Proc.devRef .tc main_v5615)) = stepH 280 (by decide) (V (Proc.devRef .tc main_arg0)) (V (Proc.devRef .tc main_v3)) (V (Proc.devRef .tc main_arg2)) (V (Proc.devRef .tc main_v5595))
    ∧ after (stepOps280 (F := Ideal)) V (no_index (Proc.devRef .tc main_v5623)) = stepY 280 (by decide) (V (Proc.devRef .tc main_arg3)) (stepH 280 (by decide) (V (Proc.devRef .tc main_arg0)) (V (Proc.devRef .tc main_v3)) (V (Proc.devRef .tc main_arg2)) (V (Proc.devRef .tc main_v5595))) (V (Proc.devRef .tc main_v5603)) := by
  simp only [stepOps280]
  after_results_simp
  first | exact ⟨rfl, rfl⟩ | fail "value"
/-- Step 281 of the loop: operations 6189 … 6210 of the program. -/
abbrev stepOps281 : List (HloOp τ sig (Elt F)) :=
  [ unary main_v3 main_v5624 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5615 main_v5624 main_v5625 (mulf : (⟨S4x256x16, .f32⟩ : BufTy).Contents (Elt F) → (⟨S4x256x16, .f32⟩ : BufTy).Contents (Elt F) → (⟨S4x256x16, .f32⟩ : BufTy).Contents (Elt F)),
    unary main_arg0 main_v5626 ((extractStridedSlice S4x1x256 ![0, 281, 0] · slices_S4x512x256_S4x1x256_0_281_0) : (⟨S4x512x256, .f32⟩ : BufTy).Contents (Elt F) → (⟨S4x1x256, .f32⟩ : BufTy).Contents (Elt F)),
    reshape main_v5626 main_v5627 rfl shapeCasts_S4x1x256_S4x256,
    unary main_v5627 main_v5628 (broadcastInDim S4x256x1 ![0, 1] bcast_S4x256_S4x256x1_0_1 : (⟨S4x256, .f32⟩ : BufTy).Contents (Elt F) → (⟨S4x256x1, .f32⟩ : BufTy).Contents (Elt F)),
    unary main_arg2 main_v5629 ((extractStridedSlice S4x1x16 ![0, 281, 0] · slices_S4x512x16_S4x1x16_0_281_0) : (⟨S4x512x16, .f32⟩ : BufTy).Contents (Elt F) → (⟨S4x1x16, .f32⟩ : BufTy).Contents (Elt F)),
    reshape main_v5629 main_v5630 rfl shapeCasts_S4x1x16_S4x16,
    unary main_v5630 main_v5631 (broadcastInDim S4x1x16 ![0, 2] bcast_S4x16_S4x1x16_0_2 : (⟨S4x16, .f32⟩ : BufTy).Contents (Elt F) → (⟨S4x1x16, .f32⟩ : BufTy).Contents (Elt F)),
    unary main_v5628 main_v5632 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5631 main_v5633 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5632 main_v5633 main_v5634 (mulf : (⟨S4x256x16, .f32⟩ : BufTy).Contents (Elt F) → (⟨S4x256x16, .f32⟩ : BufTy).Contents (Elt F) → (⟨S4x256x16, .f32⟩ : BufTy).Contents (Elt F)),
    binary main_v5625 main_v5634 main_v5635 (addf : (⟨S4x256x16, .f32⟩ : BufTy).Contents (Elt F) → (⟨S4x256x16, .f32⟩ : BufTy).Contents (Elt F) → (⟨S4x256x16, .f32⟩ : BufTy).Contents (Elt F)),
    unary main_arg3 main_v5636 ((extractStridedSlice S4x1x16 ![0, 281, 0] · slices_S4x512x16_S4x1x16_0_281_0) : (⟨S4x512x16, .f32⟩ : BufTy).Contents (Elt F) → (⟨S4x1x16, .f32⟩ : BufTy).Contents (Elt F)),
    reshape main_v5636 main_v5637 rfl shapeCasts_S4x1x16_S4x16,
    unary main_v5637 main_v5638 (broadcastInDim S4x1x16 ![0, 2] bcast_S4x16_S4x1x16_0_2 : (⟨S4x16, .f32⟩ : BufTy).Contents (Elt F) → (⟨S4x1x16, .f32⟩ : BufTy).Contents (Elt F)),
    unary main_v5638 main_v5639 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5635 main_v5639 main_v5640 (mulf : (⟨S4x256x16, .f32⟩ : BufTy).Contents (Elt F) → (⟨S4x256x16, .f32⟩ : BufTy).Contents (Elt F) → (⟨S4x256x16, .f32⟩ : BufTy).Contents (Elt F)),
    nullary main_cst_562 (constant S_ .f32 0x00000000#32),
    binary main_v5640 main_cst_562 main_v5641 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_563 (constantI S_ 32 281#32),
    unary main_c_563 main_v5642 (broadcastInDim S1 ![] bcast_S_S1 : (⟨S_, .i32⟩ : BufTy).Contents (Elt F) → (⟨S1, .i32⟩ : BufTy).Contents (Elt F)),
    ternary main_v5623 main_v5642 main_v5641 main_v5643 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps281_ok : (stepOps281 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step281_val (V : Valuation τ sig (Elt Ideal)) :
    after (stepOps281 (F := Ideal)) V (no_index (Proc.devRef .tc main_v5635)) = stepH 281 (by decide) (V (Proc.devRef .tc main_arg0)) (V (Proc.devRef .tc main_v3)) (V (Proc.devRef .tc main_arg2)) (V (Proc.devRef .tc main_v5615))
    ∧ after (stepOps281 (F := Ideal)) V (no_index (Proc.devRef .tc main_v5643)) = stepY 281 (by decide) (V (Proc.devRef .tc main_arg3)) (stepH 281 (by decide) (V (Proc.devRef .tc main_arg0)) (V (Proc.devRef .tc main_v3)) (V (Proc.devRef .tc main_arg2)) (V (Proc.devRef .tc main_v5615))) (V (Proc.devRef .tc main_v5623)) := by
  simp only [stepOps281]
  after_results_simp
  first | exact ⟨rfl, rfl⟩ | fail "value"
/-- Step 282 of the loop: operations 6211 … 6232 of the program. -/
abbrev stepOps282 : List (HloOp τ sig (Elt F)) :=
  [ unary main_v3 main_v5644 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5635 main_v5644 main_v5645 (mulf : (⟨S4x256x16, .f32⟩ : BufTy).Contents (Elt F) → (⟨S4x256x16, .f32⟩ : BufTy).Contents (Elt F) → (⟨S4x256x16, .f32⟩ : BufTy).Contents (Elt F)),
    unary main_arg0 main_v5646 ((extractStridedSlice S4x1x256 ![0, 282, 0] · slices_S4x512x256_S4x1x256_0_282_0) : (⟨S4x512x256, .f32⟩ : BufTy).Contents (Elt F) → (⟨S4x1x256, .f32⟩ : BufTy).Contents (Elt F)),
    reshape main_v5646 main_v5647 rfl shapeCasts_S4x1x256_S4x256,
    unary main_v5647 main_v5648 (broadcastInDim S4x256x1 ![0, 1] bcast_S4x256_S4x256x1_0_1 : (⟨S4x256, .f32⟩ : BufTy).Contents (Elt F) → (⟨S4x256x1, .f32⟩ : BufTy).Contents (Elt F)),
    unary main_arg2 main_v5649 ((extractStridedSlice S4x1x16 ![0, 282, 0] · slices_S4x512x16_S4x1x16_0_282_0) : (⟨S4x512x16, .f32⟩ : BufTy).Contents (Elt F) → (⟨S4x1x16, .f32⟩ : BufTy).Contents (Elt F)),
    reshape main_v5649 main_v5650 rfl shapeCasts_S4x1x16_S4x16,
    unary main_v5650 main_v5651 (broadcastInDim S4x1x16 ![0, 2] bcast_S4x16_S4x1x16_0_2 : (⟨S4x16, .f32⟩ : BufTy).Contents (Elt F) → (⟨S4x1x16, .f32⟩ : BufTy).Contents (Elt F)),
    unary main_v5648 main_v5652 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5651 main_v5653 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5652 main_v5653 main_v5654 (mulf : (⟨S4x256x16, .f32⟩ : BufTy).Contents (Elt F) → (⟨S4x256x16, .f32⟩ : BufTy).Contents (Elt F) → (⟨S4x256x16, .f32⟩ : BufTy).Contents (Elt F)),
    binary main_v5645 main_v5654 main_v5655 (addf : (⟨S4x256x16, .f32⟩ : BufTy).Contents (Elt F) → (⟨S4x256x16, .f32⟩ : BufTy).Contents (Elt F) → (⟨S4x256x16, .f32⟩ : BufTy).Contents (Elt F)),
    unary main_arg3 main_v5656 ((extractStridedSlice S4x1x16 ![0, 282, 0] · slices_S4x512x16_S4x1x16_0_282_0) : (⟨S4x512x16, .f32⟩ : BufTy).Contents (Elt F) → (⟨S4x1x16, .f32⟩ : BufTy).Contents (Elt F)),
    reshape main_v5656 main_v5657 rfl shapeCasts_S4x1x16_S4x16,
    unary main_v5657 main_v5658 (broadcastInDim S4x1x16 ![0, 2] bcast_S4x16_S4x1x16_0_2 : (⟨S4x16, .f32⟩ : BufTy).Contents (Elt F) → (⟨S4x1x16, .f32⟩ : BufTy).Contents (Elt F)),
    unary main_v5658 main_v5659 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5655 main_v5659 main_v5660 (mulf : (⟨S4x256x16, .f32⟩ : BufTy).Contents (Elt F) → (⟨S4x256x16, .f32⟩ : BufTy).Contents (Elt F) → (⟨S4x256x16, .f32⟩ : BufTy).Contents (Elt F)),
    nullary main_cst_564 (constant S_ .f32 0x00000000#32),
    binary main_v5660 main_cst_564 main_v5661 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_565 (constantI S_ 32 282#32),
    unary main_c_565 main_v5662 (broadcastInDim S1 ![] bcast_S_S1 : (⟨S_, .i32⟩ : BufTy).Contents (Elt F) → (⟨S1, .i32⟩ : BufTy).Contents (Elt F)),
    ternary main_v5643 main_v5662 main_v5661 main_v5663 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps282_ok : (stepOps282 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step282_val (V : Valuation τ sig (Elt Ideal)) :
    after (stepOps282 (F := Ideal)) V (no_index (Proc.devRef .tc main_v5655)) = stepH 282 (by decide) (V (Proc.devRef .tc main_arg0)) (V (Proc.devRef .tc main_v3)) (V (Proc.devRef .tc main_arg2)) (V (Proc.devRef .tc main_v5635))
    ∧ after (stepOps282 (F := Ideal)) V (no_index (Proc.devRef .tc main_v5663)) = stepY 282 (by decide) (V (Proc.devRef .tc main_arg3)) (stepH 282 (by decide) (V (Proc.devRef .tc main_arg0)) (V (Proc.devRef .tc main_v3)) (V (Proc.devRef .tc main_arg2)) (V (Proc.devRef .tc main_v5635))) (V (Proc.devRef .tc main_v5643)) := by
  simp only [stepOps282]
  after_results_simp
  first | exact ⟨rfl, rfl⟩ | fail "value"
/-- Step 283 of the loop: operations 6233 … 6254 of the program. -/
abbrev stepOps283 : List (HloOp τ sig (Elt F)) :=
  [ unary main_v3 main_v5664 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5655 main_v5664 main_v5665 (mulf : (⟨S4x256x16, .f32⟩ : BufTy).Contents (Elt F) → (⟨S4x256x16, .f32⟩ : BufTy).Contents (Elt F) → (⟨S4x256x16, .f32⟩ : BufTy).Contents (Elt F)),
    unary main_arg0 main_v5666 ((extractStridedSlice S4x1x256 ![0, 283, 0] · slices_S4x512x256_S4x1x256_0_283_0) : (⟨S4x512x256, .f32⟩ : BufTy).Contents (Elt F) → (⟨S4x1x256, .f32⟩ : BufTy).Contents (Elt F)),
    reshape main_v5666 main_v5667 rfl shapeCasts_S4x1x256_S4x256,
    unary main_v5667 main_v5668 (broadcastInDim S4x256x1 ![0, 1] bcast_S4x256_S4x256x1_0_1 : (⟨S4x256, .f32⟩ : BufTy).Contents (Elt F) → (⟨S4x256x1, .f32⟩ : BufTy).Contents (Elt F)),
    unary main_arg2 main_v5669 ((extractStridedSlice S4x1x16 ![0, 283, 0] · slices_S4x512x16_S4x1x16_0_283_0) : (⟨S4x512x16, .f32⟩ : BufTy).Contents (Elt F) → (⟨S4x1x16, .f32⟩ : BufTy).Contents (Elt F)),
    reshape main_v5669 main_v5670 rfl shapeCasts_S4x1x16_S4x16,
    unary main_v5670 main_v5671 (broadcastInDim S4x1x16 ![0, 2] bcast_S4x16_S4x1x16_0_2 : (⟨S4x16, .f32⟩ : BufTy).Contents (Elt F) → (⟨S4x1x16, .f32⟩ : BufTy).Contents (Elt F)),
    unary main_v5668 main_v5672 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5671 main_v5673 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5672 main_v5673 main_v5674 (mulf : (⟨S4x256x16, .f32⟩ : BufTy).Contents (Elt F) → (⟨S4x256x16, .f32⟩ : BufTy).Contents (Elt F) → (⟨S4x256x16, .f32⟩ : BufTy).Contents (Elt F)),
    binary main_v5665 main_v5674 main_v5675 (addf : (⟨S4x256x16, .f32⟩ : BufTy).Contents (Elt F) → (⟨S4x256x16, .f32⟩ : BufTy).Contents (Elt F) → (⟨S4x256x16, .f32⟩ : BufTy).Contents (Elt F)),
    unary main_arg3 main_v5676 ((extractStridedSlice S4x1x16 ![0, 283, 0] · slices_S4x512x16_S4x1x16_0_283_0) : (⟨S4x512x16, .f32⟩ : BufTy).Contents (Elt F) → (⟨S4x1x16, .f32⟩ : BufTy).Contents (Elt F)),
    reshape main_v5676 main_v5677 rfl shapeCasts_S4x1x16_S4x16,
    unary main_v5677 main_v5678 (broadcastInDim S4x1x16 ![0, 2] bcast_S4x16_S4x1x16_0_2 : (⟨S4x16, .f32⟩ : BufTy).Contents (Elt F) → (⟨S4x1x16, .f32⟩ : BufTy).Contents (Elt F)),
    unary main_v5678 main_v5679 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5675 main_v5679 main_v5680 (mulf : (⟨S4x256x16, .f32⟩ : BufTy).Contents (Elt F) → (⟨S4x256x16, .f32⟩ : BufTy).Contents (Elt F) → (⟨S4x256x16, .f32⟩ : BufTy).Contents (Elt F)),
    nullary main_cst_566 (constant S_ .f32 0x00000000#32),
    binary main_v5680 main_cst_566 main_v5681 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_567 (constantI S_ 32 283#32),
    unary main_c_567 main_v5682 (broadcastInDim S1 ![] bcast_S_S1 : (⟨S_, .i32⟩ : BufTy).Contents (Elt F) → (⟨S1, .i32⟩ : BufTy).Contents (Elt F)),
    ternary main_v5663 main_v5682 main_v5681 main_v5683 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps283_ok : (stepOps283 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step283_val (V : Valuation τ sig (Elt Ideal)) :
    after (stepOps283 (F := Ideal)) V (no_index (Proc.devRef .tc main_v5675)) = stepH 283 (by decide) (V (Proc.devRef .tc main_arg0)) (V (Proc.devRef .tc main_v3)) (V (Proc.devRef .tc main_arg2)) (V (Proc.devRef .tc main_v5655))
    ∧ after (stepOps283 (F := Ideal)) V (no_index (Proc.devRef .tc main_v5683)) = stepY 283 (by decide) (V (Proc.devRef .tc main_arg3)) (stepH 283 (by decide) (V (Proc.devRef .tc main_arg0)) (V (Proc.devRef .tc main_v3)) (V (Proc.devRef .tc main_arg2)) (V (Proc.devRef .tc main_v5655))) (V (Proc.devRef .tc main_v5663)) := by
  simp only [stepOps283]
  after_results_simp
  first | exact ⟨rfl, rfl⟩ | fail "value"
/-- Step 284 of the loop: operations 6255 … 6276 of the program. -/
abbrev stepOps284 : List (HloOp τ sig (Elt F)) :=
  [ unary main_v3 main_v5684 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5675 main_v5684 main_v5685 (mulf : (⟨S4x256x16, .f32⟩ : BufTy).Contents (Elt F) → (⟨S4x256x16, .f32⟩ : BufTy).Contents (Elt F) → (⟨S4x256x16, .f32⟩ : BufTy).Contents (Elt F)),
    unary main_arg0 main_v5686 ((extractStridedSlice S4x1x256 ![0, 284, 0] · slices_S4x512x256_S4x1x256_0_284_0) : (⟨S4x512x256, .f32⟩ : BufTy).Contents (Elt F) → (⟨S4x1x256, .f32⟩ : BufTy).Contents (Elt F)),
    reshape main_v5686 main_v5687 rfl shapeCasts_S4x1x256_S4x256,
    unary main_v5687 main_v5688 (broadcastInDim S4x256x1 ![0, 1] bcast_S4x256_S4x256x1_0_1 : (⟨S4x256, .f32⟩ : BufTy).Contents (Elt F) → (⟨S4x256x1, .f32⟩ : BufTy).Contents (Elt F)),
    unary main_arg2 main_v5689 ((extractStridedSlice S4x1x16 ![0, 284, 0] · slices_S4x512x16_S4x1x16_0_284_0) : (⟨S4x512x16, .f32⟩ : BufTy).Contents (Elt F) → (⟨S4x1x16, .f32⟩ : BufTy).Contents (Elt F)),
    reshape main_v5689 main_v5690 rfl shapeCasts_S4x1x16_S4x16,
    unary main_v5690 main_v5691 (broadcastInDim S4x1x16 ![0, 2] bcast_S4x16_S4x1x16_0_2 : (⟨S4x16, .f32⟩ : BufTy).Contents (Elt F) → (⟨S4x1x16, .f32⟩ : BufTy).Contents (Elt F)),
    unary main_v5688 main_v5692 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5691 main_v5693 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5692 main_v5693 main_v5694 (mulf : (⟨S4x256x16, .f32⟩ : BufTy).Contents (Elt F) → (⟨S4x256x16, .f32⟩ : BufTy).Contents (Elt F) → (⟨S4x256x16, .f32⟩ : BufTy).Contents (Elt F)),
    binary main_v5685 main_v5694 main_v5695 (addf : (⟨S4x256x16, .f32⟩ : BufTy).Contents (Elt F) → (⟨S4x256x16, .f32⟩ : BufTy).Contents (Elt F) → (⟨S4x256x16, .f32⟩ : BufTy).Contents (Elt F)),
    unary main_arg3 main_v5696 ((extractStridedSlice S4x1x16 ![0, 284, 0] · slices_S4x512x16_S4x1x16_0_284_0) : (⟨S4x512x16, .f32⟩ : BufTy).Contents (Elt F) → (⟨S4x1x16, .f32⟩ : BufTy).Contents (Elt F)),
    reshape main_v5696 main_v5697 rfl shapeCasts_S4x1x16_S4x16,
    unary main_v5697 main_v5698 (broadcastInDim S4x1x16 ![0, 2] bcast_S4x16_S4x1x16_0_2 : (⟨S4x16, .f32⟩ : BufTy).Contents (Elt F) → (⟨S4x1x16, .f32⟩ : BufTy).Contents (Elt F)),
    unary main_v5698 main_v5699 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5695 main_v5699 main_v5700 (mulf : (⟨S4x256x16, .f32⟩ : BufTy).Contents (Elt F) → (⟨S4x256x16, .f32⟩ : BufTy).Contents (Elt F) → (⟨S4x256x16, .f32⟩ : BufTy).Contents (Elt F)),
    nullary main_cst_568 (constant S_ .f32 0x00000000#32),
    binary main_v5700 main_cst_568 main_v5701 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_569 (constantI S_ 32 284#32),
    unary main_c_569 main_v5702 (broadcastInDim S1 ![] bcast_S_S1 : (⟨S_, .i32⟩ : BufTy).Contents (Elt F) → (⟨S1, .i32⟩ : BufTy).Contents (Elt F)),
    ternary main_v5683 main_v5702 main_v5701 main_v5703 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps284_ok : (stepOps284 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step284_val (V : Valuation τ sig (Elt Ideal)) :
    after (stepOps284 (F := Ideal)) V (no_index (Proc.devRef .tc main_v5695)) = stepH 284 (by decide) (V (Proc.devRef .tc main_arg0)) (V (Proc.devRef .tc main_v3)) (V (Proc.devRef .tc main_arg2)) (V (Proc.devRef .tc main_v5675))
    ∧ after (stepOps284 (F := Ideal)) V (no_index (Proc.devRef .tc main_v5703)) = stepY 284 (by decide) (V (Proc.devRef .tc main_arg3)) (stepH 284 (by decide) (V (Proc.devRef .tc main_arg0)) (V (Proc.devRef .tc main_v3)) (V (Proc.devRef .tc main_arg2)) (V (Proc.devRef .tc main_v5675))) (V (Proc.devRef .tc main_v5683)) := by
  simp only [stepOps284]
  after_results_simp
  first | exact ⟨rfl, rfl⟩ | fail "value"
/-- Step 285 of the loop: operations 6277 … 6298 of the program. -/
abbrev stepOps285 : List (HloOp τ sig (Elt F)) :=
  [ unary main_v3 main_v5704 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5695 main_v5704 main_v5705 (mulf : (⟨S4x256x16, .f32⟩ : BufTy).Contents (Elt F) → (⟨S4x256x16, .f32⟩ : BufTy).Contents (Elt F) → (⟨S4x256x16, .f32⟩ : BufTy).Contents (Elt F)),
    unary main_arg0 main_v5706 ((extractStridedSlice S4x1x256 ![0, 285, 0] · slices_S4x512x256_S4x1x256_0_285_0) : (⟨S4x512x256, .f32⟩ : BufTy).Contents (Elt F) → (⟨S4x1x256, .f32⟩ : BufTy).Contents (Elt F)),
    reshape main_v5706 main_v5707 rfl shapeCasts_S4x1x256_S4x256,
    unary main_v5707 main_v5708 (broadcastInDim S4x256x1 ![0, 1] bcast_S4x256_S4x256x1_0_1 : (⟨S4x256, .f32⟩ : BufTy).Contents (Elt F) → (⟨S4x256x1, .f32⟩ : BufTy).Contents (Elt F)),
    unary main_arg2 main_v5709 ((extractStridedSlice S4x1x16 ![0, 285, 0] · slices_S4x512x16_S4x1x16_0_285_0) : (⟨S4x512x16, .f32⟩ : BufTy).Contents (Elt F) → (⟨S4x1x16, .f32⟩ : BufTy).Contents (Elt F)),
    reshape main_v5709 main_v5710 rfl shapeCasts_S4x1x16_S4x16,
    unary main_v5710 main_v5711 (broadcastInDim S4x1x16 ![0, 2] bcast_S4x16_S4x1x16_0_2 : (⟨S4x16, .f32⟩ : BufTy).Contents (Elt F) → (⟨S4x1x16, .f32⟩ : BufTy).Contents (Elt F)),
    unary main_v5708 main_v5712 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5711 main_v5713 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5712 main_v5713 main_v5714 (mulf : (⟨S4x256x16, .f32⟩ : BufTy).Contents (Elt F) → (⟨S4x256x16, .f32⟩ : BufTy).Contents (Elt F) → (⟨S4x256x16, .f32⟩ : BufTy).Contents (Elt F)),
    binary main_v5705 main_v5714 main_v5715 (addf : (⟨S4x256x16, .f32⟩ : BufTy).Contents (Elt F) → (⟨S4x256x16, .f32⟩ : BufTy).Contents (Elt F) → (⟨S4x256x16, .f32⟩ : BufTy).Contents (Elt F)),
    unary main_arg3 main_v5716 ((extractStridedSlice S4x1x16 ![0, 285, 0] · slices_S4x512x16_S4x1x16_0_285_0) : (⟨S4x512x16, .f32⟩ : BufTy).Contents (Elt F) → (⟨S4x1x16, .f32⟩ : BufTy).Contents (Elt F)),
    reshape main_v5716 main_v5717 rfl shapeCasts_S4x1x16_S4x16,
    unary main_v5717 main_v5718 (broadcastInDim S4x1x16 ![0, 2] bcast_S4x16_S4x1x16_0_2 : (⟨S4x16, .f32⟩ : BufTy).Contents (Elt F) → (⟨S4x1x16, .f32⟩ : BufTy).Contents (Elt F)),
    unary main_v5718 main_v5719 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5715 main_v5719 main_v5720 (mulf : (⟨S4x256x16, .f32⟩ : BufTy).Contents (Elt F) → (⟨S4x256x16, .f32⟩ : BufTy).Contents (Elt F) → (⟨S4x256x16, .f32⟩ : BufTy).Contents (Elt F)),
    nullary main_cst_570 (constant S_ .f32 0x00000000#32),
    binary main_v5720 main_cst_570 main_v5721 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_571 (constantI S_ 32 285#32),
    unary main_c_571 main_v5722 (broadcastInDim S1 ![] bcast_S_S1 : (⟨S_, .i32⟩ : BufTy).Contents (Elt F) → (⟨S1, .i32⟩ : BufTy).Contents (Elt F)),
    ternary main_v5703 main_v5722 main_v5721 main_v5723 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps285_ok : (stepOps285 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step285_val (V : Valuation τ sig (Elt Ideal)) :
    after (stepOps285 (F := Ideal)) V (no_index (Proc.devRef .tc main_v5715)) = stepH 285 (by decide) (V (Proc.devRef .tc main_arg0)) (V (Proc.devRef .tc main_v3)) (V (Proc.devRef .tc main_arg2)) (V (Proc.devRef .tc main_v5695))
    ∧ after (stepOps285 (F := Ideal)) V (no_index (Proc.devRef .tc main_v5723)) = stepY 285 (by decide) (V (Proc.devRef .tc main_arg3)) (stepH 285 (by decide) (V (Proc.devRef .tc main_arg0)) (V (Proc.devRef .tc main_v3)) (V (Proc.devRef .tc main_arg2)) (V (Proc.devRef .tc main_v5695))) (V (Proc.devRef .tc main_v5703)) := by
  simp only [stepOps285]
  after_results_simp
  first | exact ⟨rfl, rfl⟩ | fail "value"
/-- Step 286 of the loop: operations 6299 … 6320 of the program. -/
abbrev stepOps286 : List (HloOp τ sig (Elt F)) :=
  [ unary main_v3 main_v5724 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5715 main_v5724 main_v5725 (mulf : (⟨S4x256x16, .f32⟩ : BufTy).Contents (Elt F) → (⟨S4x256x16, .f32⟩ : BufTy).Contents (Elt F) → (⟨S4x256x16, .f32⟩ : BufTy).Contents (Elt F)),
    unary main_arg0 main_v5726 ((extractStridedSlice S4x1x256 ![0, 286, 0] · slices_S4x512x256_S4x1x256_0_286_0) : (⟨S4x512x256, .f32⟩ : BufTy).Contents (Elt F) → (⟨S4x1x256, .f32⟩ : BufTy).Contents (Elt F)),
    reshape main_v5726 main_v5727 rfl shapeCasts_S4x1x256_S4x256,
    unary main_v5727 main_v5728 (broadcastInDim S4x256x1 ![0, 1] bcast_S4x256_S4x256x1_0_1 : (⟨S4x256, .f32⟩ : BufTy).Contents (Elt F) → (⟨S4x256x1, .f32⟩ : BufTy).Contents (Elt F)),
    unary main_arg2 main_v5729 ((extractStridedSlice S4x1x16 ![0, 286, 0] · slices_S4x512x16_S4x1x16_0_286_0) : (⟨S4x512x16, .f32⟩ : BufTy).Contents (Elt F) → (⟨S4x1x16, .f32⟩ : BufTy).Contents (Elt F)),
    reshape main_v5729 main_v5730 rfl shapeCasts_S4x1x16_S4x16,
    unary main_v5730 main_v5731 (broadcastInDim S4x1x16 ![0, 2] bcast_S4x16_S4x1x16_0_2 : (⟨S4x16, .f32⟩ : BufTy).Contents (Elt F) → (⟨S4x1x16, .f32⟩ : BufTy).Contents (Elt F)),
    unary main_v5728 main_v5732 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5731 main_v5733 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5732 main_v5733 main_v5734 (mulf : (⟨S4x256x16, .f32⟩ : BufTy).Contents (Elt F) → (⟨S4x256x16, .f32⟩ : BufTy).Contents (Elt F) → (⟨S4x256x16, .f32⟩ : BufTy).Contents (Elt F)),
    binary main_v5725 main_v5734 main_v5735 (addf : (⟨S4x256x16, .f32⟩ : BufTy).Contents (Elt F) → (⟨S4x256x16, .f32⟩ : BufTy).Contents (Elt F) → (⟨S4x256x16, .f32⟩ : BufTy).Contents (Elt F)),
    unary main_arg3 main_v5736 ((extractStridedSlice S4x1x16 ![0, 286, 0] · slices_S4x512x16_S4x1x16_0_286_0) : (⟨S4x512x16, .f32⟩ : BufTy).Contents (Elt F) → (⟨S4x1x16, .f32⟩ : BufTy).Contents (Elt F)),
    reshape main_v5736 main_v5737 rfl shapeCasts_S4x1x16_S4x16,
    unary main_v5737 main_v5738 (broadcastInDim S4x1x16 ![0, 2] bcast_S4x16_S4x1x16_0_2 : (⟨S4x16, .f32⟩ : BufTy).Contents (Elt F) → (⟨S4x1x16, .f32⟩ : BufTy).Contents (Elt F)),
    unary main_v5738 main_v5739 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5735 main_v5739 main_v5740 (mulf : (⟨S4x256x16, .f32⟩ : BufTy).Contents (Elt F) → (⟨S4x256x16, .f32⟩ : BufTy).Contents (Elt F) → (⟨S4x256x16, .f32⟩ : BufTy).Contents (Elt F)),
    nullary main_cst_572 (constant S_ .f32 0x00000000#32),
    binary main_v5740 main_cst_572 main_v5741 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_573 (constantI S_ 32 286#32),
    unary main_c_573 main_v5742 (broadcastInDim S1 ![] bcast_S_S1 : (⟨S_, .i32⟩ : BufTy).Contents (Elt F) → (⟨S1, .i32⟩ : BufTy).Contents (Elt F)),
    ternary main_v5723 main_v5742 main_v5741 main_v5743 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps286_ok : (stepOps286 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step286_val (V : Valuation τ sig (Elt Ideal)) :
    after (stepOps286 (F := Ideal)) V (no_index (Proc.devRef .tc main_v5735)) = stepH 286 (by decide) (V (Proc.devRef .tc main_arg0)) (V (Proc.devRef .tc main_v3)) (V (Proc.devRef .tc main_arg2)) (V (Proc.devRef .tc main_v5715))
    ∧ after (stepOps286 (F := Ideal)) V (no_index (Proc.devRef .tc main_v5743)) = stepY 286 (by decide) (V (Proc.devRef .tc main_arg3)) (stepH 286 (by decide) (V (Proc.devRef .tc main_arg0)) (V (Proc.devRef .tc main_v3)) (V (Proc.devRef .tc main_arg2)) (V (Proc.devRef .tc main_v5715))) (V (Proc.devRef .tc main_v5723)) := by
  simp only [stepOps286]
  after_results_simp
  first | exact ⟨rfl, rfl⟩ | fail "value"
/-- Step 287 of the loop: operations 6321 … 6342 of the program. -/
abbrev stepOps287 : List (HloOp τ sig (Elt F)) :=
  [ unary main_v3 main_v5744 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5735 main_v5744 main_v5745 (mulf : (⟨S4x256x16, .f32⟩ : BufTy).Contents (Elt F) → (⟨S4x256x16, .f32⟩ : BufTy).Contents (Elt F) → (⟨S4x256x16, .f32⟩ : BufTy).Contents (Elt F)),
    unary main_arg0 main_v5746 ((extractStridedSlice S4x1x256 ![0, 287, 0] · slices_S4x512x256_S4x1x256_0_287_0) : (⟨S4x512x256, .f32⟩ : BufTy).Contents (Elt F) → (⟨S4x1x256, .f32⟩ : BufTy).Contents (Elt F)),
    reshape main_v5746 main_v5747 rfl shapeCasts_S4x1x256_S4x256,
    unary main_v5747 main_v5748 (broadcastInDim S4x256x1 ![0, 1] bcast_S4x256_S4x256x1_0_1 : (⟨S4x256, .f32⟩ : BufTy).Contents (Elt F) → (⟨S4x256x1, .f32⟩ : BufTy).Contents (Elt F)),
    unary main_arg2 main_v5749 ((extractStridedSlice S4x1x16 ![0, 287, 0] · slices_S4x512x16_S4x1x16_0_287_0) : (⟨S4x512x16, .f32⟩ : BufTy).Contents (Elt F) → (⟨S4x1x16, .f32⟩ : BufTy).Contents (Elt F)),
    reshape main_v5749 main_v5750 rfl shapeCasts_S4x1x16_S4x16,
    unary main_v5750 main_v5751 (broadcastInDim S4x1x16 ![0, 2] bcast_S4x16_S4x1x16_0_2 : (⟨S4x16, .f32⟩ : BufTy).Contents (Elt F) → (⟨S4x1x16, .f32⟩ : BufTy).Contents (Elt F)),
    unary main_v5748 main_v5752 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5751 main_v5753 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5752 main_v5753 main_v5754 (mulf : (⟨S4x256x16, .f32⟩ : BufTy).Contents (Elt F) → (⟨S4x256x16, .f32⟩ : BufTy).Contents (Elt F) → (⟨S4x256x16, .f32⟩ : BufTy).Contents (Elt F)),
    binary main_v5745 main_v5754 main_v5755 (addf : (⟨S4x256x16, .f32⟩ : BufTy).Contents (Elt F) → (⟨S4x256x16, .f32⟩ : BufTy).Contents (Elt F) → (⟨S4x256x16, .f32⟩ : BufTy).Contents (Elt F)),
    unary main_arg3 main_v5756 ((extractStridedSlice S4x1x16 ![0, 287, 0] · slices_S4x512x16_S4x1x16_0_287_0) : (⟨S4x512x16, .f32⟩ : BufTy).Contents (Elt F) → (⟨S4x1x16, .f32⟩ : BufTy).Contents (Elt F)),
    reshape main_v5756 main_v5757 rfl shapeCasts_S4x1x16_S4x16,
    unary main_v5757 main_v5758 (broadcastInDim S4x1x16 ![0, 2] bcast_S4x16_S4x1x16_0_2 : (⟨S4x16, .f32⟩ : BufTy).Contents (Elt F) → (⟨S4x1x16, .f32⟩ : BufTy).Contents (Elt F)),
    unary main_v5758 main_v5759 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5755 main_v5759 main_v5760 (mulf : (⟨S4x256x16, .f32⟩ : BufTy).Contents (Elt F) → (⟨S4x256x16, .f32⟩ : BufTy).Contents (Elt F) → (⟨S4x256x16, .f32⟩ : BufTy).Contents (Elt F)),
    nullary main_cst_574 (constant S_ .f32 0x00000000#32),
    binary main_v5760 main_cst_574 main_v5761 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_575 (constantI S_ 32 287#32),
    unary main_c_575 main_v5762 (broadcastInDim S1 ![] bcast_S_S1 : (⟨S_, .i32⟩ : BufTy).Contents (Elt F) → (⟨S1, .i32⟩ : BufTy).Contents (Elt F)),
    ternary main_v5743 main_v5762 main_v5761 main_v5763 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps287_ok : (stepOps287 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step287_val (V : Valuation τ sig (Elt Ideal)) :
    after (stepOps287 (F := Ideal)) V (no_index (Proc.devRef .tc main_v5755)) = stepH 287 (by decide) (V (Proc.devRef .tc main_arg0)) (V (Proc.devRef .tc main_v3)) (V (Proc.devRef .tc main_arg2)) (V (Proc.devRef .tc main_v5735))
    ∧ after (stepOps287 (F := Ideal)) V (no_index (Proc.devRef .tc main_v5763)) = stepY 287 (by decide) (V (Proc.devRef .tc main_arg3)) (stepH 287 (by decide) (V (Proc.devRef .tc main_arg0)) (V (Proc.devRef .tc main_v3)) (V (Proc.devRef .tc main_arg2)) (V (Proc.devRef .tc main_v5735))) (V (Proc.devRef .tc main_v5743)) := by
  simp only [stepOps287]
  after_results_simp
  first | exact ⟨rfl, rfl⟩ | fail "value"

end Cert.ReferenceIdeal.RefRun

end
-- ==== Proof.RefTableStep18.lean ====
/-
  Steps 288 … 303 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 288 of the loop: operations 6343 … 6364 of the program. -/
abbrev stepOps288 : List (HloOp τ sig (Elt F)) :=
  [ unary main_v3 main_v5764 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5755 main_v5764 main_v5765 (mulf : (⟨S4x256x16, .f32⟩ : BufTy).Contents (Elt F) → (⟨S4x256x16, .f32⟩ : BufTy).Contents (Elt F) → (⟨S4x256x16, .f32⟩ : BufTy).Contents (Elt F)),
    unary main_arg0 main_v5766 ((extractStridedSlice S4x1x256 ![0, 288, 0] · slices_S4x512x256_S4x1x256_0_288_0) : (⟨S4x512x256, .f32⟩ : BufTy).Contents (Elt F) → (⟨S4x1x256, .f32⟩ : BufTy).Contents (Elt F)),
    reshape main_v5766 main_v5767 rfl shapeCasts_S4x1x256_S4x256,
    unary main_v5767 main_v5768 (broadcastInDim S4x256x1 ![0, 1] bcast_S4x256_S4x256x1_0_1 : (⟨S4x256, .f32⟩ : BufTy).Contents (Elt F) → (⟨S4x256x1, .f32⟩ : BufTy).Contents (Elt F)),
    unary main_arg2 main_v5769 ((extractStridedSlice S4x1x16 ![0, 288, 0] · slices_S4x512x16_S4x1x16_0_288_0) : (⟨S4x512x16, .f32⟩ : BufTy).Contents (Elt F) → (⟨S4x1x16, .f32⟩ : BufTy).Contents (Elt F)),
    reshape main_v5769 main_v5770 rfl shapeCasts_S4x1x16_S4x16,
    unary main_v5770 main_v5771 (broadcastInDim S4x1x16 ![0, 2] bcast_S4x16_S4x1x16_0_2 : (⟨S4x16, .f32⟩ : BufTy).Contents (Elt F) → (⟨S4x1x16, .f32⟩ : BufTy).Contents (Elt F)),
    unary main_v5768 main_v5772 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5771 main_v5773 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5772 main_v5773 main_v5774 (mulf : (⟨S4x256x16, .f32⟩ : BufTy).Contents (Elt F) → (⟨S4x256x16, .f32⟩ : BufTy).Contents (Elt F) → (⟨S4x256x16, .f32⟩ : BufTy).Contents (Elt F)),
    binary main_v5765 main_v5774 main_v5775 (addf : (⟨S4x256x16, .f32⟩ : BufTy).Contents (Elt F) → (⟨S4x256x16, .f32⟩ : BufTy).Contents (Elt F) → (⟨S4x256x16, .f32⟩ : BufTy).Contents (Elt F)),
    unary main_arg3 main_v5776 ((extractStridedSlice S4x1x16 ![0, 288, 0] · slices_S4x512x16_S4x1x16_0_288_0) : (⟨S4x512x16, .f32⟩ : BufTy).Contents (Elt F) → (⟨S4x1x16, .f32⟩ : BufTy).Contents (Elt F)),
    reshape main_v5776 main_v5777 rfl shapeCasts_S4x1x16_S4x16,
    unary main_v5777 main_v5778 (broadcastInDim S4x1x16 ![0, 2] bcast_S4x16_S4x1x16_0_2 : (⟨S4x16, .f32⟩ : BufTy).Contents (Elt F) → (⟨S4x1x16, .f32⟩ : BufTy).Contents (Elt F)),
    unary main_v5778 main_v5779 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5775 main_v5779 main_v5780 (mulf : (⟨S4x256x16, .f32⟩ : BufTy).Contents (Elt F) → (⟨S4x256x16, .f32⟩ : BufTy).Contents (Elt F) → (⟨S4x256x16, .f32⟩ : BufTy).Contents (Elt F)),
    nullary main_cst_576 (constant S_ .f32 0x00000000#32),
    binary main_v5780 main_cst_576 main_v5781 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_577 (constantI S_ 32 288#32),
    unary main_c_577 main_v5782 (broadcastInDim S1 ![] bcast_S_S1 : (⟨S_, .i32⟩ : BufTy).Contents (Elt F) → (⟨S1, .i32⟩ : BufTy).Contents (Elt F)),
    ternary main_v5763 main_v5782 main_v5781 main_v5783 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps288_ok : (stepOps288 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step288_val (V : Valuation τ sig (Elt Ideal)) :
    after (stepOps288 (F := Ideal)) V (no_index (Proc.devRef .tc main_v5775)) = stepH 288 (by decide) (V (Proc.devRef .tc main_arg0)) (V (Proc.devRef .tc main_v3)) (V (Proc.devRef .tc main_arg2)) (V (Proc.devRef .tc main_v5755))
    ∧ after (stepOps288 (F := Ideal)) V (no_index (Proc.devRef .tc main_v5783)) = stepY 288 (by decide) (V (Proc.devRef .tc main_arg3)) (stepH 288 (by decide) (V (Proc.devRef .tc main_arg0)) (V (Proc.devRef .tc main_v3)) (V (Proc.devRef .tc main_arg2)) (V (Proc.devRef .tc main_v5755))) (V (Proc.devRef .tc main_v5763)) := by
  simp only [stepOps288]
  after_results_simp
  first | exact ⟨rfl, rfl⟩ | fail "value"
/-- Step 289 of the loop: operations 6365 … 6386 of the program. -/
abbrev stepOps289 : List (HloOp τ sig (Elt F)) :=
  [ unary main_v3 main_v5784 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5775 main_v5784 main_v5785 (mulf : (⟨S4x256x16, .f32⟩ : BufTy).Contents (Elt F) → (⟨S4x256x16, .f32⟩ : BufTy).Contents (Elt F) → (⟨S4x256x16, .f32⟩ : BufTy).Contents (Elt F)),
    unary main_arg0 main_v5786 ((extractStridedSlice S4x1x256 ![0, 289, 0] · slices_S4x512x256_S4x1x256_0_289_0) : (⟨S4x512x256, .f32⟩ : BufTy).Contents (Elt F) → (⟨S4x1x256, .f32⟩ : BufTy).Contents (Elt F)),
    reshape main_v5786 main_v5787 rfl shapeCasts_S4x1x256_S4x256,
    unary main_v5787 main_v5788 (broadcastInDim S4x256x1 ![0, 1] bcast_S4x256_S4x256x1_0_1 : (⟨S4x256, .f32⟩ : BufTy).Contents (Elt F) → (⟨S4x256x1, .f32⟩ : BufTy).Contents (Elt F)),
    unary main_arg2 main_v5789 ((extractStridedSlice S4x1x16 ![0, 289, 0] · slices_S4x512x16_S4x1x16_0_289_0) : (⟨S4x512x16, .f32⟩ : BufTy).Contents (Elt F) → (⟨S4x1x16, .f32⟩ : BufTy).Contents (Elt F)),
    reshape main_v5789 main_v5790 rfl shapeCasts_S4x1x16_S4x16,
    unary main_v5790 main_v5791 (broadcastInDim S4x1x16 ![0, 2] bcast_S4x16_S4x1x16_0_2 : (⟨S4x16, .f32⟩ : BufTy).Contents (Elt F) → (⟨S4x1x16, .f32⟩ : BufTy).Contents (Elt F)),
    unary main_v5788 main_v5792 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5791 main_v5793 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5792 main_v5793 main_v5794 (mulf : (⟨S4x256x16, .f32⟩ : BufTy).Contents (Elt F) → (⟨S4x256x16, .f32⟩ : BufTy).Contents (Elt F) → (⟨S4x256x16, .f32⟩ : BufTy).Contents (Elt F)),
    binary main_v5785 main_v5794 main_v5795 (addf : (⟨S4x256x16, .f32⟩ : BufTy).Contents (Elt F) → (⟨S4x256x16, .f32⟩ : BufTy).Contents (Elt F) → (⟨S4x256x16, .f32⟩ : BufTy).Contents (Elt F)),
    unary main_arg3 main_v5796 ((extractStridedSlice S4x1x16 ![0, 289, 0] · slices_S4x512x16_S4x1x16_0_289_0) : (⟨S4x512x16, .f32⟩ : BufTy).Contents (Elt F) → (⟨S4x1x16, .f32⟩ : BufTy).Contents (Elt F)),
    reshape main_v5796 main_v5797 rfl shapeCasts_S4x1x16_S4x16,
    unary main_v5797 main_v5798 (broadcastInDim S4x1x16 ![0, 2] bcast_S4x16_S4x1x16_0_2 : (⟨S4x16, .f32⟩ : BufTy).Contents (Elt F) → (⟨S4x1x16, .f32⟩ : BufTy).Contents (Elt F)),
    unary main_v5798 main_v5799 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5795 main_v5799 main_v5800 (mulf : (⟨S4x256x16, .f32⟩ : BufTy).Contents (Elt F) → (⟨S4x256x16, .f32⟩ : BufTy).Contents (Elt F) → (⟨S4x256x16, .f32⟩ : BufTy).Contents (Elt F)),
    nullary main_cst_578 (constant S_ .f32 0x00000000#32),
    binary main_v5800 main_cst_578 main_v5801 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_579 (constantI S_ 32 289#32),
    unary main_c_579 main_v5802 (broadcastInDim S1 ![] bcast_S_S1 : (⟨S_, .i32⟩ : BufTy).Contents (Elt F) → (⟨S1, .i32⟩ : BufTy).Contents (Elt F)),
    ternary main_v5783 main_v5802 main_v5801 main_v5803 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps289_ok : (stepOps289 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step289_val (V : Valuation τ sig (Elt Ideal)) :
    after (stepOps289 (F := Ideal)) V (no_index (Proc.devRef .tc main_v5795)) = stepH 289 (by decide) (V (Proc.devRef .tc main_arg0)) (V (Proc.devRef .tc main_v3)) (V (Proc.devRef .tc main_arg2)) (V (Proc.devRef .tc main_v5775))
    ∧ after (stepOps289 (F := Ideal)) V (no_index (Proc.devRef .tc main_v5803)) = stepY 289 (by decide) (V (Proc.devRef .tc main_arg3)) (stepH 289 (by decide) (V (Proc.devRef .tc main_arg0)) (V (Proc.devRef .tc main_v3)) (V (Proc.devRef .tc main_arg2)) (V (Proc.devRef .tc main_v5775))) (V (Proc.devRef .tc main_v5783)) := by
  simp only [stepOps289]
  after_results_simp
  first | exact ⟨rfl, rfl⟩ | fail "value"
/-- Step 290 of the loop: operations 6387 … 6408 of the program. -/
abbrev stepOps290 : List (HloOp τ sig (Elt F)) :=
  [ unary main_v3 main_v5804 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5795 main_v5804 main_v5805 (mulf : (⟨S4x256x16, .f32⟩ : BufTy).Contents (Elt F) → (⟨S4x256x16, .f32⟩ : BufTy).Contents (Elt F) → (⟨S4x256x16, .f32⟩ : BufTy).Contents (Elt F)),
    unary main_arg0 main_v5806 ((extractStridedSlice S4x1x256 ![0, 290, 0] · slices_S4x512x256_S4x1x256_0_290_0) : (⟨S4x512x256, .f32⟩ : BufTy).Contents (Elt F) → (⟨S4x1x256, .f32⟩ : BufTy).Contents (Elt F)),
    reshape main_v5806 main_v5807 rfl shapeCasts_S4x1x256_S4x256,
    unary main_v5807 main_v5808 (broadcastInDim S4x256x1 ![0, 1] bcast_S4x256_S4x256x1_0_1 : (⟨S4x256, .f32⟩ : BufTy).Contents (Elt F) → (⟨S4x256x1, .f32⟩ : BufTy).Contents (Elt F)),
    unary main_arg2 main_v5809 ((extractStridedSlice S4x1x16 ![0, 290, 0] · slices_S4x512x16_S4x1x16_0_290_0) : (⟨S4x512x16, .f32⟩ : BufTy).Contents (Elt F) → (⟨S4x1x16, .f32⟩ : BufTy).Contents (Elt F)),
    reshape main_v5809 main_v5810 rfl shapeCasts_S4x1x16_S4x16,
    unary main_v5810 main_v5811 (broadcastInDim S4x1x16 ![0, 2] bcast_S4x16_S4x1x16_0_2 : (⟨S4x16, .f32⟩ : BufTy).Contents (Elt F) → (⟨S4x1x16, .f32⟩ : BufTy).Contents (Elt F)),
    unary main_v5808 main_v5812 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5811 main_v5813 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5812 main_v5813 main_v5814 (mulf : (⟨S4x256x16, .f32⟩ : BufTy).Contents (Elt F) → (⟨S4x256x16, .f32⟩ : BufTy).Contents (Elt F) → (⟨S4x256x16, .f32⟩ : BufTy).Contents (Elt F)),
    binary main_v5805 main_v5814 main_v5815 (addf : (⟨S4x256x16, .f32⟩ : BufTy).Contents (Elt F) → (⟨S4x256x16, .f32⟩ : BufTy).Contents (Elt F) → (⟨S4x256x16, .f32⟩ : BufTy).Contents (Elt F)),
    unary main_arg3 main_v5816 ((extractStridedSlice S4x1x16 ![0, 290, 0] · slices_S4x512x16_S4x1x16_0_290_0) : (⟨S4x512x16, .f32⟩ : BufTy).Contents (Elt F) → (⟨S4x1x16, .f32⟩ : BufTy).Contents (Elt F)),
    reshape main_v5816 main_v5817 rfl shapeCasts_S4x1x16_S4x16,
    unary main_v5817 main_v5818 (broadcastInDim S4x1x16 ![0, 2] bcast_S4x16_S4x1x16_0_2 : (⟨S4x16, .f32⟩ : BufTy).Contents (Elt F) → (⟨S4x1x16, .f32⟩ : BufTy).Contents (Elt F)),
    unary main_v5818 main_v5819 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5815 main_v5819 main_v5820 (mulf : (⟨S4x256x16, .f32⟩ : BufTy).Contents (Elt F) → (⟨S4x256x16, .f32⟩ : BufTy).Contents (Elt F) → (⟨S4x256x16, .f32⟩ : BufTy).Contents (Elt F)),
    nullary main_cst_580 (constant S_ .f32 0x00000000#32),
    binary main_v5820 main_cst_580 main_v5821 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_581 (constantI S_ 32 290#32),
    unary main_c_581 main_v5822 (broadcastInDim S1 ![] bcast_S_S1 : (⟨S_, .i32⟩ : BufTy).Contents (Elt F) → (⟨S1, .i32⟩ : BufTy).Contents (Elt F)),
    ternary main_v5803 main_v5822 main_v5821 main_v5823 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps290_ok : (stepOps290 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step290_val (V : Valuation τ sig (Elt Ideal)) :
    after (stepOps290 (F := Ideal)) V (no_index (Proc.devRef .tc main_v5815)) = stepH 290 (by decide) (V (Proc.devRef .tc main_arg0)) (V (Proc.devRef .tc main_v3)) (V (Proc.devRef .tc main_arg2)) (V (Proc.devRef .tc main_v5795))
    ∧ after (stepOps290 (F := Ideal)) V (no_index (Proc.devRef .tc main_v5823)) = stepY 290 (by decide) (V (Proc.devRef .tc main_arg3)) (stepH 290 (by decide) (V (Proc.devRef .tc main_arg0)) (V (Proc.devRef .tc main_v3)) (V (Proc.devRef .tc main_arg2)) (V (Proc.devRef .tc main_v5795))) (V (Proc.devRef .tc main_v5803)) := by
  simp only [stepOps290]
  after_results_simp
  first | exact ⟨rfl, rfl⟩ | fail "value"
/-- Step 291 of the loop: operations 6409 … 6430 of the program. -/
abbrev stepOps291 : List (HloOp τ sig (Elt F)) :=
  [ unary main_v3 main_v5824 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5815 main_v5824 main_v5825 (mulf : (⟨S4x256x16, .f32⟩ : BufTy).Contents (Elt F) → (⟨S4x256x16, .f32⟩ : BufTy).Contents (Elt F) → (⟨S4x256x16, .f32⟩ : BufTy).Contents (Elt F)),
    unary main_arg0 main_v5826 ((extractStridedSlice S4x1x256 ![0, 291, 0] · slices_S4x512x256_S4x1x256_0_291_0) : (⟨S4x512x256, .f32⟩ : BufTy).Contents (Elt F) → (⟨S4x1x256, .f32⟩ : BufTy).Contents (Elt F)),
    reshape main_v5826 main_v5827 rfl shapeCasts_S4x1x256_S4x256,
    unary main_v5827 main_v5828 (broadcastInDim S4x256x1 ![0, 1] bcast_S4x256_S4x256x1_0_1 : (⟨S4x256, .f32⟩ : BufTy).Contents (Elt F) → (⟨S4x256x1, .f32⟩ : BufTy).Contents (Elt F)),
    unary main_arg2 main_v5829 ((extractStridedSlice S4x1x16 ![0, 291, 0] · slices_S4x512x16_S4x1x16_0_291_0) : (⟨S4x512x16, .f32⟩ : BufTy).Contents (Elt F) → (⟨S4x1x16, .f32⟩ : BufTy).Contents (Elt F)),
    reshape main_v5829 main_v5830 rfl shapeCasts_S4x1x16_S4x16,
    unary main_v5830 main_v5831 (broadcastInDim S4x1x16 ![0, 2] bcast_S4x16_S4x1x16_0_2 : (⟨S4x16, .f32⟩ : BufTy).Contents (Elt F) → (⟨S4x1x16, .f32⟩ : BufTy).Contents (Elt F)),
    unary main_v5828 main_v5832 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5831 main_v5833 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5832 main_v5833 main_v5834 (mulf : (⟨S4x256x16, .f32⟩ : BufTy).Contents (Elt F) → (⟨S4x256x16, .f32⟩ : BufTy).Contents (Elt F) → (⟨S4x256x16, .f32⟩ : BufTy).Contents (Elt F)),
    binary main_v5825 main_v5834 main_v5835 (addf : (⟨S4x256x16, .f32⟩ : BufTy).Contents (Elt F) → (⟨S4x256x16, .f32⟩ : BufTy).Contents (Elt F) → (⟨S4x256x16, .f32⟩ : BufTy).Contents (Elt F)),
    unary main_arg3 main_v5836 ((extractStridedSlice S4x1x16 ![0, 291, 0] · slices_S4x512x16_S4x1x16_0_291_0) : (⟨S4x512x16, .f32⟩ : BufTy).Contents (Elt F) → (⟨S4x1x16, .f32⟩ : BufTy).Contents (Elt F)),
    reshape main_v5836 main_v5837 rfl shapeCasts_S4x1x16_S4x16,
    unary main_v5837 main_v5838 (broadcastInDim S4x1x16 ![0, 2] bcast_S4x16_S4x1x16_0_2 : (⟨S4x16, .f32⟩ : BufTy).Contents (Elt F) → (⟨S4x1x16, .f32⟩ : BufTy).Contents (Elt F)),
    unary main_v5838 main_v5839 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5835 main_v5839 main_v5840 (mulf : (⟨S4x256x16, .f32⟩ : BufTy).Contents (Elt F) → (⟨S4x256x16, .f32⟩ : BufTy).Contents (Elt F) → (⟨S4x256x16, .f32⟩ : BufTy).Contents (Elt F)),
    nullary main_cst_582 (constant S_ .f32 0x00000000#32),
    binary main_v5840 main_cst_582 main_v5841 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_583 (constantI S_ 32 291#32),
    unary main_c_583 main_v5842 (broadcastInDim S1 ![] bcast_S_S1 : (⟨S_, .i32⟩ : BufTy).Contents (Elt F) → (⟨S1, .i32⟩ : BufTy).Contents (Elt F)),
    ternary main_v5823 main_v5842 main_v5841 main_v5843 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps291_ok : (stepOps291 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step291_val (V : Valuation τ sig (Elt Ideal)) :
    after (stepOps291 (F := Ideal)) V (no_index (Proc.devRef .tc main_v5835)) = stepH 291 (by decide) (V (Proc.devRef .tc main_arg0)) (V (Proc.devRef .tc main_v3)) (V (Proc.devRef .tc main_arg2)) (V (Proc.devRef .tc main_v5815))
    ∧ after (stepOps291 (F := Ideal)) V (no_index (Proc.devRef .tc main_v5843)) = stepY 291 (by decide) (V (Proc.devRef .tc main_arg3)) (stepH 291 (by decide) (V (Proc.devRef .tc main_arg0)) (V (Proc.devRef .tc main_v3)) (V (Proc.devRef .tc main_arg2)) (V (Proc.devRef .tc main_v5815))) (V (Proc.devRef .tc main_v5823)) := by
  simp only [stepOps291]
  after_results_simp
  first | exact ⟨rfl, rfl⟩ | fail "value"
/-- Step 292 of the loop: operations 6431 … 6452 of the program. -/
abbrev stepOps292 : List (HloOp τ sig (Elt F)) :=
  [ unary main_v3 main_v5844 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5835 main_v5844 main_v5845 (mulf : (⟨S4x256x16, .f32⟩ : BufTy).Contents (Elt F) → (⟨S4x256x16, .f32⟩ : BufTy).Contents (Elt F) → (⟨S4x256x16, .f32⟩ : BufTy).Contents (Elt F)),
    unary main_arg0 main_v5846 ((extractStridedSlice S4x1x256 ![0, 292, 0] · slices_S4x512x256_S4x1x256_0_292_0) : (⟨S4x512x256, .f32⟩ : BufTy).Contents (Elt F) → (⟨S4x1x256, .f32⟩ : BufTy).Contents (Elt F)),
    reshape main_v5846 main_v5847 rfl shapeCasts_S4x1x256_S4x256,
    unary main_v5847 main_v5848 (broadcastInDim S4x256x1 ![0, 1] bcast_S4x256_S4x256x1_0_1 : (⟨S4x256, .f32⟩ : BufTy).Contents (Elt F) → (⟨S4x256x1, .f32⟩ : BufTy).Contents (Elt F)),
    unary main_arg2 main_v5849 ((extractStridedSlice S4x1x16 ![0, 292, 0] · slices_S4x512x16_S4x1x16_0_292_0) : (⟨S4x512x16, .f32⟩ : BufTy).Contents (Elt F) → (⟨S4x1x16, .f32⟩ : BufTy).Contents (Elt F)),
    reshape main_v5849 main_v5850 rfl shapeCasts_S4x1x16_S4x16,
    unary main_v5850 main_v5851 (broadcastInDim S4x1x16 ![0, 2] bcast_S4x16_S4x1x16_0_2 : (⟨S4x16, .f32⟩ : BufTy).Contents (Elt F) → (⟨S4x1x16, .f32⟩ : BufTy).Contents (Elt F)),
    unary main_v5848 main_v5852 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5851 main_v5853 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5852 main_v5853 main_v5854 (mulf : (⟨S4x256x16, .f32⟩ : BufTy).Contents (Elt F) → (⟨S4x256x16, .f32⟩ : BufTy).Contents (Elt F) → (⟨S4x256x16, .f32⟩ : BufTy).Contents (Elt F)),
    binary main_v5845 main_v5854 main_v5855 (addf : (⟨S4x256x16, .f32⟩ : BufTy).Contents (Elt F) → (⟨S4x256x16, .f32⟩ : BufTy).Contents (Elt F) → (⟨S4x256x16, .f32⟩ : BufTy).Contents (Elt F)),
    unary main_arg3 main_v5856 ((extractStridedSlice S4x1x16 ![0, 292, 0] · slices_S4x512x16_S4x1x16_0_292_0) : (⟨S4x512x16, .f32⟩ : BufTy).Contents (Elt F) → (⟨S4x1x16, .f32⟩ : BufTy).Contents (Elt F)),
    reshape main_v5856 main_v5857 rfl shapeCasts_S4x1x16_S4x16,
    unary main_v5857 main_v5858 (broadcastInDim S4x1x16 ![0, 2] bcast_S4x16_S4x1x16_0_2 : (⟨S4x16, .f32⟩ : BufTy).Contents (Elt F) → (⟨S4x1x16, .f32⟩ : BufTy).Contents (Elt F)),
    unary main_v5858 main_v5859 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5855 main_v5859 main_v5860 (mulf : (⟨S4x256x16, .f32⟩ : BufTy).Contents (Elt F) → (⟨S4x256x16, .f32⟩ : BufTy).Contents (Elt F) → (⟨S4x256x16, .f32⟩ : BufTy).Contents (Elt F)),
    nullary main_cst_584 (constant S_ .f32 0x00000000#32),
    binary main_v5860 main_cst_584 main_v5861 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_585 (constantI S_ 32 292#32),
    unary main_c_585 main_v5862 (broadcastInDim S1 ![] bcast_S_S1 : (⟨S_, .i32⟩ : BufTy).Contents (Elt F) → (⟨S1, .i32⟩ : BufTy).Contents (Elt F)),
    ternary main_v5843 main_v5862 main_v5861 main_v5863 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps292_ok : (stepOps292 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step292_val (V : Valuation τ sig (Elt Ideal)) :
    after (stepOps292 (F := Ideal)) V (no_index (Proc.devRef .tc main_v5855)) = stepH 292 (by decide) (V (Proc.devRef .tc main_arg0)) (V (Proc.devRef .tc main_v3)) (V (Proc.devRef .tc main_arg2)) (V (Proc.devRef .tc main_v5835))
    ∧ after (stepOps292 (F := Ideal)) V (no_index (Proc.devRef .tc main_v5863)) = stepY 292 (by decide) (V (Proc.devRef .tc main_arg3)) (stepH 292 (by decide) (V (Proc.devRef .tc main_arg0)) (V (Proc.devRef .tc main_v3)) (V (Proc.devRef .tc main_arg2)) (V (Proc.devRef .tc main_v5835))) (V (Proc.devRef .tc main_v5843)) := by
  simp only [stepOps292]
  after_results_simp
  first | exact ⟨rfl, rfl⟩ | fail "value"
/-- Step 293 of the loop: operations 6453 … 6474 of the program. -/
abbrev stepOps293 : List (HloOp τ sig (Elt F)) :=
  [ unary main_v3 main_v5864 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5855 main_v5864 main_v5865 (mulf : (⟨S4x256x16, .f32⟩ : BufTy).Contents (Elt F) → (⟨S4x256x16, .f32⟩ : BufTy).Contents (Elt F) → (⟨S4x256x16, .f32⟩ : BufTy).Contents (Elt F)),
    unary main_arg0 main_v5866 ((extractStridedSlice S4x1x256 ![0, 293, 0] · slices_S4x512x256_S4x1x256_0_293_0) : (⟨S4x512x256, .f32⟩ : BufTy).Contents (Elt F) → (⟨S4x1x256, .f32⟩ : BufTy).Contents (Elt F)),
    reshape main_v5866 main_v5867 rfl shapeCasts_S4x1x256_S4x256,
    unary main_v5867 main_v5868 (broadcastInDim S4x256x1 ![0, 1] bcast_S4x256_S4x256x1_0_1 : (⟨S4x256, .f32⟩ : BufTy).Contents (Elt F) → (⟨S4x256x1, .f32⟩ : BufTy).Contents (Elt F)),
    unary main_arg2 main_v5869 ((extractStridedSlice S4x1x16 ![0, 293, 0] · slices_S4x512x16_S4x1x16_0_293_0) : (⟨S4x512x16, .f32⟩ : BufTy).Contents (Elt F) → (⟨S4x1x16, .f32⟩ : BufTy).Contents (Elt F)),
    reshape main_v5869 main_v5870 rfl shapeCasts_S4x1x16_S4x16,
    unary main_v5870 main_v5871 (broadcastInDim S4x1x16 ![0, 2] bcast_S4x16_S4x1x16_0_2 : (⟨S4x16, .f32⟩ : BufTy).Contents (Elt F) → (⟨S4x1x16, .f32⟩ : BufTy).Contents (Elt F)),
    unary main_v5868 main_v5872 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5871 main_v5873 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5872 main_v5873 main_v5874 (mulf : (⟨S4x256x16, .f32⟩ : BufTy).Contents (Elt F) → (⟨S4x256x16, .f32⟩ : BufTy).Contents (Elt F) → (⟨S4x256x16, .f32⟩ : BufTy).Contents (Elt F)),
    binary main_v5865 main_v5874 main_v5875 (addf : (⟨S4x256x16, .f32⟩ : BufTy).Contents (Elt F) → (⟨S4x256x16, .f32⟩ : BufTy).Contents (Elt F) → (⟨S4x256x16, .f32⟩ : BufTy).Contents (Elt F)),
    unary main_arg3 main_v5876 ((extractStridedSlice S4x1x16 ![0, 293, 0] · slices_S4x512x16_S4x1x16_0_293_0) : (⟨S4x512x16, .f32⟩ : BufTy).Contents (Elt F) → (⟨S4x1x16, .f32⟩ : BufTy).Contents (Elt F)),
    reshape main_v5876 main_v5877 rfl shapeCasts_S4x1x16_S4x16,
    unary main_v5877 main_v5878 (broadcastInDim S4x1x16 ![0, 2] bcast_S4x16_S4x1x16_0_2 : (⟨S4x16, .f32⟩ : BufTy).Contents (Elt F) → (⟨S4x1x16, .f32⟩ : BufTy).Contents (Elt F)),
    unary main_v5878 main_v5879 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5875 main_v5879 main_v5880 (mulf : (⟨S4x256x16, .f32⟩ : BufTy).Contents (Elt F) → (⟨S4x256x16, .f32⟩ : BufTy).Contents (Elt F) → (⟨S4x256x16, .f32⟩ : BufTy).Contents (Elt F)),
    nullary main_cst_586 (constant S_ .f32 0x00000000#32),
    binary main_v5880 main_cst_586 main_v5881 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_587 (constantI S_ 32 293#32),
    unary main_c_587 main_v5882 (broadcastInDim S1 ![] bcast_S_S1 : (⟨S_, .i32⟩ : BufTy).Contents (Elt F) → (⟨S1, .i32⟩ : BufTy).Contents (Elt F)),
    ternary main_v5863 main_v5882 main_v5881 main_v5883 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps293_ok : (stepOps293 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step293_val (V : Valuation τ sig (Elt Ideal)) :
    after (stepOps293 (F := Ideal)) V (no_index (Proc.devRef .tc main_v5875)) = stepH 293 (by decide) (V (Proc.devRef .tc main_arg0)) (V (Proc.devRef .tc main_v3)) (V (Proc.devRef .tc main_arg2)) (V (Proc.devRef .tc main_v5855))
    ∧ after (stepOps293 (F := Ideal)) V (no_index (Proc.devRef .tc main_v5883)) = stepY 293 (by decide) (V (Proc.devRef .tc main_arg3)) (stepH 293 (by decide) (V (Proc.devRef .tc main_arg0)) (V (Proc.devRef .tc main_v3)) (V (Proc.devRef .tc main_arg2)) (V (Proc.devRef .tc main_v5855))) (V (Proc.devRef .tc main_v5863)) := by
  simp only [stepOps293]
  after_results_simp
  first | exact ⟨rfl, rfl⟩ | fail "value"
/-- Step 294 of the loop: operations 6475 … 6496 of the program. -/
abbrev stepOps294 : List (HloOp τ sig (Elt F)) :=
  [ unary main_v3 main_v5884 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5875 main_v5884 main_v5885 (mulf : (⟨S4x256x16, .f32⟩ : BufTy).Contents (Elt F) → (⟨S4x256x16, .f32⟩ : BufTy).Contents (Elt F) → (⟨S4x256x16, .f32⟩ : BufTy).Contents (Elt F)),
    unary main_arg0 main_v5886 ((extractStridedSlice S4x1x256 ![0, 294, 0] · slices_S4x512x256_S4x1x256_0_294_0) : (⟨S4x512x256, .f32⟩ : BufTy).Contents (Elt F) → (⟨S4x1x256, .f32⟩ : BufTy).Contents (Elt F)),
    reshape main_v5886 main_v5887 rfl shapeCasts_S4x1x256_S4x256,
    unary main_v5887 main_v5888 (broadcastInDim S4x256x1 ![0, 1] bcast_S4x256_S4x256x1_0_1 : (⟨S4x256, .f32⟩ : BufTy).Contents (Elt F) → (⟨S4x256x1, .f32⟩ : BufTy).Contents (Elt F)),
    unary main_arg2 main_v5889 ((extractStridedSlice S4x1x16 ![0, 294, 0] · slices_S4x512x16_S4x1x16_0_294_0) : (⟨S4x512x16, .f32⟩ : BufTy).Contents (Elt F) → (⟨S4x1x16, .f32⟩ : BufTy).Contents (Elt F)),
    reshape main_v5889 main_v5890 rfl shapeCasts_S4x1x16_S4x16,
    unary main_v5890 main_v5891 (broadcastInDim S4x1x16 ![0, 2] bcast_S4x16_S4x1x16_0_2 : (⟨S4x16, .f32⟩ : BufTy).Contents (Elt F) → (⟨S4x1x16, .f32⟩ : BufTy).Contents (Elt F)),
    unary main_v5888 main_v5892 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5891 main_v5893 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5892 main_v5893 main_v5894 (mulf : (⟨S4x256x16, .f32⟩ : BufTy).Contents (Elt F) → (⟨S4x256x16, .f32⟩ : BufTy).Contents (Elt F) → (⟨S4x256x16, .f32⟩ : BufTy).Contents (Elt F)),
    binary main_v5885 main_v5894 main_v5895 (addf : (⟨S4x256x16, .f32⟩ : BufTy).Contents (Elt F) → (⟨S4x256x16, .f32⟩ : BufTy).Contents (Elt F) → (⟨S4x256x16, .f32⟩ : BufTy).Contents (Elt F)),
    unary main_arg3 main_v5896 ((extractStridedSlice S4x1x16 ![0, 294, 0] · slices_S4x512x16_S4x1x16_0_294_0) : (⟨S4x512x16, .f32⟩ : BufTy).Contents (Elt F) → (⟨S4x1x16, .f32⟩ : BufTy).Contents (Elt F)),
    reshape main_v5896 main_v5897 rfl shapeCasts_S4x1x16_S4x16,
    unary main_v5897 main_v5898 (broadcastInDim S4x1x16 ![0, 2] bcast_S4x16_S4x1x16_0_2 : (⟨S4x16, .f32⟩ : BufTy).Contents (Elt F) → (⟨S4x1x16, .f32⟩ : BufTy).Contents (Elt F)),
    unary main_v5898 main_v5899 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5895 main_v5899 main_v5900 (mulf : (⟨S4x256x16, .f32⟩ : BufTy).Contents (Elt F) → (⟨S4x256x16, .f32⟩ : BufTy).Contents (Elt F) → (⟨S4x256x16, .f32⟩ : BufTy).Contents (Elt F)),
    nullary main_cst_588 (constant S_ .f32 0x00000000#32),
    binary main_v5900 main_cst_588 main_v5901 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_589 (constantI S_ 32 294#32),
    unary main_c_589 main_v5902 (broadcastInDim S1 ![] bcast_S_S1 : (⟨S_, .i32⟩ : BufTy).Contents (Elt F) → (⟨S1, .i32⟩ : BufTy).Contents (Elt F)),
    ternary main_v5883 main_v5902 main_v5901 main_v5903 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps294_ok : (stepOps294 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step294_val (V : Valuation τ sig (Elt Ideal)) :
    after (stepOps294 (F := Ideal)) V (no_index (Proc.devRef .tc main_v5895)) = stepH 294 (by decide) (V (Proc.devRef .tc main_arg0)) (V (Proc.devRef .tc main_v3)) (V (Proc.devRef .tc main_arg2)) (V (Proc.devRef .tc main_v5875))
    ∧ after (stepOps294 (F := Ideal)) V (no_index (Proc.devRef .tc main_v5903)) = stepY 294 (by decide) (V (Proc.devRef .tc main_arg3)) (stepH 294 (by decide) (V (Proc.devRef .tc main_arg0)) (V (Proc.devRef .tc main_v3)) (V (Proc.devRef .tc main_arg2)) (V (Proc.devRef .tc main_v5875))) (V (Proc.devRef .tc main_v5883)) := by
  simp only [stepOps294]
  after_results_simp
  first | exact ⟨rfl, rfl⟩ | fail "value"
/-- Step 295 of the loop: operations 6497 … 6518 of the program. -/
abbrev stepOps295 : List (HloOp τ sig (Elt F)) :=
  [ unary main_v3 main_v5904 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5895 main_v5904 main_v5905 (mulf : (⟨S4x256x16, .f32⟩ : BufTy).Contents (Elt F) → (⟨S4x256x16, .f32⟩ : BufTy).Contents (Elt F) → (⟨S4x256x16, .f32⟩ : BufTy).Contents (Elt F)),
    unary main_arg0 main_v5906 ((extractStridedSlice S4x1x256 ![0, 295, 0] · slices_S4x512x256_S4x1x256_0_295_0) : (⟨S4x512x256, .f32⟩ : BufTy).Contents (Elt F) → (⟨S4x1x256, .f32⟩ : BufTy).Contents (Elt F)),
    reshape main_v5906 main_v5907 rfl shapeCasts_S4x1x256_S4x256,
    unary main_v5907 main_v5908 (broadcastInDim S4x256x1 ![0, 1] bcast_S4x256_S4x256x1_0_1 : (⟨S4x256, .f32⟩ : BufTy).Contents (Elt F) → (⟨S4x256x1, .f32⟩ : BufTy).Contents (Elt F)),
    unary main_arg2 main_v5909 ((extractStridedSlice S4x1x16 ![0, 295, 0] · slices_S4x512x16_S4x1x16_0_295_0) : (⟨S4x512x16, .f32⟩ : BufTy).Contents (Elt F) → (⟨S4x1x16, .f32⟩ : BufTy).Contents (Elt F)),
    reshape main_v5909 main_v5910 rfl shapeCasts_S4x1x16_S4x16,
    unary main_v5910 main_v5911 (broadcastInDim S4x1x16 ![0, 2] bcast_S4x16_S4x1x16_0_2 : (⟨S4x16, .f32⟩ : BufTy).Contents (Elt F) → (⟨S4x1x16, .f32⟩ : BufTy).Contents (Elt F)),
    unary main_v5908 main_v5912 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5911 main_v5913 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5912 main_v5913 main_v5914 (mulf : (⟨S4x256x16, .f32⟩ : BufTy).Contents (Elt F) → (⟨S4x256x16, .f32⟩ : BufTy).Contents (Elt F) → (⟨S4x256x16, .f32⟩ : BufTy).Contents (Elt F)),
    binary main_v5905 main_v5914 main_v5915 (addf : (⟨S4x256x16, .f32⟩ : BufTy).Contents (Elt F) → (⟨S4x256x16, .f32⟩ : BufTy).Contents (Elt F) → (⟨S4x256x16, .f32⟩ : BufTy).Contents (Elt F)),
    unary main_arg3 main_v5916 ((extractStridedSlice S4x1x16 ![0, 295, 0] · slices_S4x512x16_S4x1x16_0_295_0) : (⟨S4x512x16, .f32⟩ : BufTy).Contents (Elt F) → (⟨S4x1x16, .f32⟩ : BufTy).Contents (Elt F)),
    reshape main_v5916 main_v5917 rfl shapeCasts_S4x1x16_S4x16,
    unary main_v5917 main_v5918 (broadcastInDim S4x1x16 ![0, 2] bcast_S4x16_S4x1x16_0_2 : (⟨S4x16, .f32⟩ : BufTy).Contents (Elt F) → (⟨S4x1x16, .f32⟩ : BufTy).Contents (Elt F)),
    unary main_v5918 main_v5919 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5915 main_v5919 main_v5920 (mulf : (⟨S4x256x16, .f32⟩ : BufTy).Contents (Elt F) → (⟨S4x256x16, .f32⟩ : BufTy).Contents (Elt F) → (⟨S4x256x16, .f32⟩ : BufTy).Contents (Elt F)),
    nullary main_cst_590 (constant S_ .f32 0x00000000#32),
    binary main_v5920 main_cst_590 main_v5921 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_591 (constantI S_ 32 295#32),
    unary main_c_591 main_v5922 (broadcastInDim S1 ![] bcast_S_S1 : (⟨S_, .i32⟩ : BufTy).Contents (Elt F) → (⟨S1, .i32⟩ : BufTy).Contents (Elt F)),
    ternary main_v5903 main_v5922 main_v5921 main_v5923 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps295_ok : (stepOps295 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step295_val (V : Valuation τ sig (Elt Ideal)) :
    after (stepOps295 (F := Ideal)) V (no_index (Proc.devRef .tc main_v5915)) = stepH 295 (by decide) (V (Proc.devRef .tc main_arg0)) (V (Proc.devRef .tc main_v3)) (V (Proc.devRef .tc main_arg2)) (V (Proc.devRef .tc main_v5895))
    ∧ after (stepOps295 (F := Ideal)) V (no_index (Proc.devRef .tc main_v5923)) = stepY 295 (by decide) (V (Proc.devRef .tc main_arg3)) (stepH 295 (by decide) (V (Proc.devRef .tc main_arg0)) (V (Proc.devRef .tc main_v3)) (V (Proc.devRef .tc main_arg2)) (V (Proc.devRef .tc main_v5895))) (V (Proc.devRef .tc main_v5903)) := by
  simp only [stepOps295]
  after_results_simp
  first | exact ⟨rfl, rfl⟩ | fail "value"
/-- Step 296 of the loop: operations 6519 … 6540 of the program. -/
abbrev stepOps296 : List (HloOp τ sig (Elt F)) :=
  [ unary main_v3 main_v5924 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5915 main_v5924 main_v5925 (mulf : (⟨S4x256x16, .f32⟩ : BufTy).Contents (Elt F) → (⟨S4x256x16, .f32⟩ : BufTy).Contents (Elt F) → (⟨S4x256x16, .f32⟩ : BufTy).Contents (Elt F)),
    unary main_arg0 main_v5926 ((extractStridedSlice S4x1x256 ![0, 296, 0] · slices_S4x512x256_S4x1x256_0_296_0) : (⟨S4x512x256, .f32⟩ : BufTy).Contents (Elt F) → (⟨S4x1x256, .f32⟩ : BufTy).Contents (Elt F)),
    reshape main_v5926 main_v5927 rfl shapeCasts_S4x1x256_S4x256,
    unary main_v5927 main_v5928 (broadcastInDim S4x256x1 ![0, 1] bcast_S4x256_S4x256x1_0_1 : (⟨S4x256, .f32⟩ : BufTy).Contents (Elt F) → (⟨S4x256x1, .f32⟩ : BufTy).Contents (Elt F)),
    unary main_arg2 main_v5929 ((extractStridedSlice S4x1x16 ![0, 296, 0] · slices_S4x512x16_S4x1x16_0_296_0) : (⟨S4x512x16, .f32⟩ : BufTy).Contents (Elt F) → (⟨S4x1x16, .f32⟩ : BufTy).Contents (Elt F)),
    reshape main_v5929 main_v5930 rfl shapeCasts_S4x1x16_S4x16,
    unary main_v5930 main_v5931 (broadcastInDim S4x1x16 ![0, 2] bcast_S4x16_S4x1x16_0_2 : (⟨S4x16, .f32⟩ : BufTy).Contents (Elt F) → (⟨S4x1x16, .f32⟩ : BufTy).Contents (Elt F)),
    unary main_v5928 main_v5932 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5931 main_v5933 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5932 main_v5933 main_v5934 (mulf : (⟨S4x256x16, .f32⟩ : BufTy).Contents (Elt F) → (⟨S4x256x16, .f32⟩ : BufTy).Contents (Elt F) → (⟨S4x256x16, .f32⟩ : BufTy).Contents (Elt F)),
    binary main_v5925 main_v5934 main_v5935 (addf : (⟨S4x256x16, .f32⟩ : BufTy).Contents (Elt F) → (⟨S4x256x16, .f32⟩ : BufTy).Contents (Elt F) → (⟨S4x256x16, .f32⟩ : BufTy).Contents (Elt F)),
    unary main_arg3 main_v5936 ((extractStridedSlice S4x1x16 ![0, 296, 0] · slices_S4x512x16_S4x1x16_0_296_0) : (⟨S4x512x16, .f32⟩ : BufTy).Contents (Elt F) → (⟨S4x1x16, .f32⟩ : BufTy).Contents (Elt F)),
    reshape main_v5936 main_v5937 rfl shapeCasts_S4x1x16_S4x16,
    unary main_v5937 main_v5938 (broadcastInDim S4x1x16 ![0, 2] bcast_S4x16_S4x1x16_0_2 : (⟨S4x16, .f32⟩ : BufTy).Contents (Elt F) → (⟨S4x1x16, .f32⟩ : BufTy).Contents (Elt F)),
    unary main_v5938 main_v5939 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5935 main_v5939 main_v5940 (mulf : (⟨S4x256x16, .f32⟩ : BufTy).Contents (Elt F) → (⟨S4x256x16, .f32⟩ : BufTy).Contents (Elt F) → (⟨S4x256x16, .f32⟩ : BufTy).Contents (Elt F)),
    nullary main_cst_592 (constant S_ .f32 0x00000000#32),
    binary main_v5940 main_cst_592 main_v5941 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_593 (constantI S_ 32 296#32),
    unary main_c_593 main_v5942 (broadcastInDim S1 ![] bcast_S_S1 : (⟨S_, .i32⟩ : BufTy).Contents (Elt F) → (⟨S1, .i32⟩ : BufTy).Contents (Elt F)),
    ternary main_v5923 main_v5942 main_v5941 main_v5943 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps296_ok : (stepOps296 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step296_val (V : Valuation τ sig (Elt Ideal)) :
    after (stepOps296 (F := Ideal)) V (no_index (Proc.devRef .tc main_v5935)) = stepH 296 (by decide) (V (Proc.devRef .tc main_arg0)) (V (Proc.devRef .tc main_v3)) (V (Proc.devRef .tc main_arg2)) (V (Proc.devRef .tc main_v5915))
    ∧ after (stepOps296 (F := Ideal)) V (no_index (Proc.devRef .tc main_v5943)) = stepY 296 (by decide) (V (Proc.devRef .tc main_arg3)) (stepH 296 (by decide) (V (Proc.devRef .tc main_arg0)) (V (Proc.devRef .tc main_v3)) (V (Proc.devRef .tc main_arg2)) (V (Proc.devRef .tc main_v5915))) (V (Proc.devRef .tc main_v5923)) := by
  simp only [stepOps296]
  after_results_simp
  first | exact ⟨rfl, rfl⟩ | fail "value"
/-- Step 297 of the loop: operations 6541 … 6562 of the program. -/
abbrev stepOps297 : List (HloOp τ sig (Elt F)) :=
  [ unary main_v3 main_v5944 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5935 main_v5944 main_v5945 (mulf : (⟨S4x256x16, .f32⟩ : BufTy).Contents (Elt F) → (⟨S4x256x16, .f32⟩ : BufTy).Contents (Elt F) → (⟨S4x256x16, .f32⟩ : BufTy).Contents (Elt F)),
    unary main_arg0 main_v5946 ((extractStridedSlice S4x1x256 ![0, 297, 0] · slices_S4x512x256_S4x1x256_0_297_0) : (⟨S4x512x256, .f32⟩ : BufTy).Contents (Elt F) → (⟨S4x1x256, .f32⟩ : BufTy).Contents (Elt F)),
    reshape main_v5946 main_v5947 rfl shapeCasts_S4x1x256_S4x256,
    unary main_v5947 main_v5948 (broadcastInDim S4x256x1 ![0, 1] bcast_S4x256_S4x256x1_0_1 : (⟨S4x256, .f32⟩ : BufTy).Contents (Elt F) → (⟨S4x256x1, .f32⟩ : BufTy).Contents (Elt F)),
    unary main_arg2 main_v5949 ((extractStridedSlice S4x1x16 ![0, 297, 0] · slices_S4x512x16_S4x1x16_0_297_0) : (⟨S4x512x16, .f32⟩ : BufTy).Contents (Elt F) → (⟨S4x1x16, .f32⟩ : BufTy).Contents (Elt F)),
    reshape main_v5949 main_v5950 rfl shapeCasts_S4x1x16_S4x16,
    unary main_v5950 main_v5951 (broadcastInDim S4x1x16 ![0, 2] bcast_S4x16_S4x1x16_0_2 : (⟨S4x16, .f32⟩ : BufTy).Contents (Elt F) → (⟨S4x1x16, .f32⟩ : BufTy).Contents (Elt F)),
    unary main_v5948 main_v5952 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5951 main_v5953 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5952 main_v5953 main_v5954 (mulf : (⟨S4x256x16, .f32⟩ : BufTy).Contents (Elt F) → (⟨S4x256x16, .f32⟩ : BufTy).Contents (Elt F) → (⟨S4x256x16, .f32⟩ : BufTy).Contents (Elt F)),
    binary main_v5945 main_v5954 main_v5955 (addf : (⟨S4x256x16, .f32⟩ : BufTy).Contents (Elt F) → (⟨S4x256x16, .f32⟩ : BufTy).Contents (Elt F) → (⟨S4x256x16, .f32⟩ : BufTy).Contents (Elt F)),
    unary main_arg3 main_v5956 ((extractStridedSlice S4x1x16 ![0, 297, 0] · slices_S4x512x16_S4x1x16_0_297_0) : (⟨S4x512x16, .f32⟩ : BufTy).Contents (Elt F) → (⟨S4x1x16, .f32⟩ : BufTy).Contents (Elt F)),
    reshape main_v5956 main_v5957 rfl shapeCasts_S4x1x16_S4x16,
    unary main_v5957 main_v5958 (broadcastInDim S4x1x16 ![0, 2] bcast_S4x16_S4x1x16_0_2 : (⟨S4x16, .f32⟩ : BufTy).Contents (Elt F) → (⟨S4x1x16, .f32⟩ : BufTy).Contents (Elt F)),
    unary main_v5958 main_v5959 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5955 main_v5959 main_v5960 (mulf : (⟨S4x256x16, .f32⟩ : BufTy).Contents (Elt F) → (⟨S4x256x16, .f32⟩ : BufTy).Contents (Elt F) → (⟨S4x256x16, .f32⟩ : BufTy).Contents (Elt F)),
    nullary main_cst_594 (constant S_ .f32 0x00000000#32),
    binary main_v5960 main_cst_594 main_v5961 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_595 (constantI S_ 32 297#32),
    unary main_c_595 main_v5962 (broadcastInDim S1 ![] bcast_S_S1 : (⟨S_, .i32⟩ : BufTy).Contents (Elt F) → (⟨S1, .i32⟩ : BufTy).Contents (Elt F)),
    ternary main_v5943 main_v5962 main_v5961 main_v5963 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps297_ok : (stepOps297 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step297_val (V : Valuation τ sig (Elt Ideal)) :
    after (stepOps297 (F := Ideal)) V (no_index (Proc.devRef .tc main_v5955)) = stepH 297 (by decide) (V (Proc.devRef .tc main_arg0)) (V (Proc.devRef .tc main_v3)) (V (Proc.devRef .tc main_arg2)) (V (Proc.devRef .tc main_v5935))
    ∧ after (stepOps297 (F := Ideal)) V (no_index (Proc.devRef .tc main_v5963)) = stepY 297 (by decide) (V (Proc.devRef .tc main_arg3)) (stepH 297 (by decide) (V (Proc.devRef .tc main_arg0)) (V (Proc.devRef .tc main_v3)) (V (Proc.devRef .tc main_arg2)) (V (Proc.devRef .tc main_v5935))) (V (Proc.devRef .tc main_v5943)) := by
  simp only [stepOps297]
  after_results_simp
  first | exact ⟨rfl, rfl⟩ | fail "value"
/-- Step 298 of the loop: operations 6563 … 6584 of the program. -/
abbrev stepOps298 : List (HloOp τ sig (Elt F)) :=
  [ unary main_v3 main_v5964 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5955 main_v5964 main_v5965 (mulf : (⟨S4x256x16, .f32⟩ : BufTy).Contents (Elt F) → (⟨S4x256x16, .f32⟩ : BufTy).Contents (Elt F) → (⟨S4x256x16, .f32⟩ : BufTy).Contents (Elt F)),
    unary main_arg0 main_v5966 ((extractStridedSlice S4x1x256 ![0, 298, 0] · slices_S4x512x256_S4x1x256_0_298_0) : (⟨S4x512x256, .f32⟩ : BufTy).Contents (Elt F) → (⟨S4x1x256, .f32⟩ : BufTy).Contents (Elt F)),
    reshape main_v5966 main_v5967 rfl shapeCasts_S4x1x256_S4x256,
    unary main_v5967 main_v5968 (broadcastInDim S4x256x1 ![0, 1] bcast_S4x256_S4x256x1_0_1 : (⟨S4x256, .f32⟩ : BufTy).Contents (Elt F) → (⟨S4x256x1, .f32⟩ : BufTy).Contents (Elt F)),
    unary main_arg2 main_v5969 ((extractStridedSlice S4x1x16 ![0, 298, 0] · slices_S4x512x16_S4x1x16_0_298_0) : (⟨S4x512x16, .f32⟩ : BufTy).Contents (Elt F) → (⟨S4x1x16, .f32⟩ : BufTy).Contents (Elt F)),
    reshape main_v5969 main_v5970 rfl shapeCasts_S4x1x16_S4x16,
    unary main_v5970 main_v5971 (broadcastInDim S4x1x16 ![0, 2] bcast_S4x16_S4x1x16_0_2 : (⟨S4x16, .f32⟩ : BufTy).Contents (Elt F) → (⟨S4x1x16, .f32⟩ : BufTy).Contents (Elt F)),
    unary main_v5968 main_v5972 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5971 main_v5973 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5972 main_v5973 main_v5974 (mulf : (⟨S4x256x16, .f32⟩ : BufTy).Contents (Elt F) → (⟨S4x256x16, .f32⟩ : BufTy).Contents (Elt F) → (⟨S4x256x16, .f32⟩ : BufTy).Contents (Elt F)),
    binary main_v5965 main_v5974 main_v5975 (addf : (⟨S4x256x16, .f32⟩ : BufTy).Contents (Elt F) → (⟨S4x256x16, .f32⟩ : BufTy).Contents (Elt F) → (⟨S4x256x16, .f32⟩ : BufTy).Contents (Elt F)),
    unary main_arg3 main_v5976 ((extractStridedSlice S4x1x16 ![0, 298, 0] · slices_S4x512x16_S4x1x16_0_298_0) : (⟨S4x512x16, .f32⟩ : BufTy).Contents (Elt F) → (⟨S4x1x16, .f32⟩ : BufTy).Contents (Elt F)),
    reshape main_v5976 main_v5977 rfl shapeCasts_S4x1x16_S4x16,
    unary main_v5977 main_v5978 (broadcastInDim S4x1x16 ![0, 2] bcast_S4x16_S4x1x16_0_2 : (⟨S4x16, .f32⟩ : BufTy).Contents (Elt F) → (⟨S4x1x16, .f32⟩ : BufTy).Contents (Elt F)),
    unary main_v5978 main_v5979 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5975 main_v5979 main_v5980 (mulf : (⟨S4x256x16, .f32⟩ : BufTy).Contents (Elt F) → (⟨S4x256x16, .f32⟩ : BufTy).Contents (Elt F) → (⟨S4x256x16, .f32⟩ : BufTy).Contents (Elt F)),
    nullary main_cst_596 (constant S_ .f32 0x00000000#32),
    binary main_v5980 main_cst_596 main_v5981 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_597 (constantI S_ 32 298#32),
    unary main_c_597 main_v5982 (broadcastInDim S1 ![] bcast_S_S1 : (⟨S_, .i32⟩ : BufTy).Contents (Elt F) → (⟨S1, .i32⟩ : BufTy).Contents (Elt F)),
    ternary main_v5963 main_v5982 main_v5981 main_v5983 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps298_ok : (stepOps298 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step298_val (V : Valuation τ sig (Elt Ideal)) :
    after (stepOps298 (F := Ideal)) V (no_index (Proc.devRef .tc main_v5975)) = stepH 298 (by decide) (V (Proc.devRef .tc main_arg0)) (V (Proc.devRef .tc main_v3)) (V (Proc.devRef .tc main_arg2)) (V (Proc.devRef .tc main_v5955))
    ∧ after (stepOps298 (F := Ideal)) V (no_index (Proc.devRef .tc main_v5983)) = stepY 298 (by decide) (V (Proc.devRef .tc main_arg3)) (stepH 298 (by decide) (V (Proc.devRef .tc main_arg0)) (V (Proc.devRef .tc main_v3)) (V (Proc.devRef .tc main_arg2)) (V (Proc.devRef .tc main_v5955))) (V (Proc.devRef .tc main_v5963)) := by
  simp only [stepOps298]
  after_results_simp
  first | exact ⟨rfl, rfl⟩ | fail "value"
/-- Step 299 of the loop: operations 6585 … 6606 of the program. -/
abbrev stepOps299 : List (HloOp τ sig (Elt F)) :=
  [ unary main_v3 main_v5984 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5975 main_v5984 main_v5985 (mulf : (⟨S4x256x16, .f32⟩ : BufTy).Contents (Elt F) → (⟨S4x256x16, .f32⟩ : BufTy).Contents (Elt F) → (⟨S4x256x16, .f32⟩ : BufTy).Contents (Elt F)),
    unary main_arg0 main_v5986 ((extractStridedSlice S4x1x256 ![0, 299, 0] · slices_S4x512x256_S4x1x256_0_299_0) : (⟨S4x512x256, .f32⟩ : BufTy).Contents (Elt F) → (⟨S4x1x256, .f32⟩ : BufTy).Contents (Elt F)),
    reshape main_v5986 main_v5987 rfl shapeCasts_S4x1x256_S4x256,
    unary main_v5987 main_v5988 (broadcastInDim S4x256x1 ![0, 1] bcast_S4x256_S4x256x1_0_1 : (⟨S4x256, .f32⟩ : BufTy).Contents (Elt F) → (⟨S4x256x1, .f32⟩ : BufTy).Contents (Elt F)),
    unary main_arg2 main_v5989 ((extractStridedSlice S4x1x16 ![0, 299, 0] · slices_S4x512x16_S4x1x16_0_299_0) : (⟨S4x512x16, .f32⟩ : BufTy).Contents (Elt F) → (⟨S4x1x16, .f32⟩ : BufTy).Contents (Elt F)),
    reshape main_v5989 main_v5990 rfl shapeCasts_S4x1x16_S4x16,
    unary main_v5990 main_v5991 (broadcastInDim S4x1x16 ![0, 2] bcast_S4x16_S4x1x16_0_2 : (⟨S4x16, .f32⟩ : BufTy).Contents (Elt F) → (⟨S4x1x16, .f32⟩ : BufTy).Contents (Elt F)),
    unary main_v5988 main_v5992 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v5991 main_v5993 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5992 main_v5993 main_v5994 (mulf : (⟨S4x256x16, .f32⟩ : BufTy).Contents (Elt F) → (⟨S4x256x16, .f32⟩ : BufTy).Contents (Elt F) → (⟨S4x256x16, .f32⟩ : BufTy).Contents (Elt F)),
    binary main_v5985 main_v5994 main_v5995 (addf : (⟨S4x256x16, .f32⟩ : BufTy).Contents (Elt F) → (⟨S4x256x16, .f32⟩ : BufTy).Contents (Elt F) → (⟨S4x256x16, .f32⟩ : BufTy).Contents (Elt F)),
    unary main_arg3 main_v5996 ((extractStridedSlice S4x1x16 ![0, 299, 0] · slices_S4x512x16_S4x1x16_0_299_0) : (⟨S4x512x16, .f32⟩ : BufTy).Contents (Elt F) → (⟨S4x1x16, .f32⟩ : BufTy).Contents (Elt F)),
    reshape main_v5996 main_v5997 rfl shapeCasts_S4x1x16_S4x16,
    unary main_v5997 main_v5998 (broadcastInDim S4x1x16 ![0, 2] bcast_S4x16_S4x1x16_0_2 : (⟨S4x16, .f32⟩ : BufTy).Contents (Elt F) → (⟨S4x1x16, .f32⟩ : BufTy).Contents (Elt F)),
    unary main_v5998 main_v5999 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v5995 main_v5999 main_v6000 (mulf : (⟨S4x256x16, .f32⟩ : BufTy).Contents (Elt F) → (⟨S4x256x16, .f32⟩ : BufTy).Contents (Elt F) → (⟨S4x256x16, .f32⟩ : BufTy).Contents (Elt F)),
    nullary main_cst_598 (constant S_ .f32 0x00000000#32),
    binary main_v6000 main_cst_598 main_v6001 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_599 (constantI S_ 32 299#32),
    unary main_c_599 main_v6002 (broadcastInDim S1 ![] bcast_S_S1 : (⟨S_, .i32⟩ : BufTy).Contents (Elt F) → (⟨S1, .i32⟩ : BufTy).Contents (Elt F)),
    ternary main_v5983 main_v6002 main_v6001 main_v6003 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps299_ok : (stepOps299 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step299_val (V : Valuation τ sig (Elt Ideal)) :
    after (stepOps299 (F := Ideal)) V (no_index (Proc.devRef .tc main_v5995)) = stepH 299 (by decide) (V (Proc.devRef .tc main_arg0)) (V (Proc.devRef .tc main_v3)) (V (Proc.devRef .tc main_arg2)) (V (Proc.devRef .tc main_v5975))
    ∧ after (stepOps299 (F := Ideal)) V (no_index (Proc.devRef .tc main_v6003)) = stepY 299 (by decide) (V (Proc.devRef .tc main_arg3)) (stepH 299 (by decide) (V (Proc.devRef .tc main_arg0)) (V (Proc.devRef .tc main_v3)) (V (Proc.devRef .tc main_arg2)) (V (Proc.devRef .tc main_v5975))) (V (Proc.devRef .tc main_v5983)) := by
  simp only [stepOps299]
  after_results_simp
  first | exact ⟨rfl, rfl⟩ | fail "value"
/-- Step 300 of the loop: operations 6607 … 6628 of the program. -/
abbrev stepOps300 : List (HloOp τ sig (Elt F)) :=
  [ unary main_v3 main_v6004 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v5995 main_v6004 main_v6005 (mulf : (⟨S4x256x16, .f32⟩ : BufTy).Contents (Elt F) → (⟨S4x256x16, .f32⟩ : BufTy).Contents (Elt F) → (⟨S4x256x16, .f32⟩ : BufTy).Contents (Elt F)),
    unary main_arg0 main_v6006 ((extractStridedSlice S4x1x256 ![0, 300, 0] · slices_S4x512x256_S4x1x256_0_300_0) : (⟨S4x512x256, .f32⟩ : BufTy).Contents (Elt F) → (⟨S4x1x256, .f32⟩ : BufTy).Contents (Elt F)),
    reshape main_v6006 main_v6007 rfl shapeCasts_S4x1x256_S4x256,
    unary main_v6007 main_v6008 (broadcastInDim S4x256x1 ![0, 1] bcast_S4x256_S4x256x1_0_1 : (⟨S4x256, .f32⟩ : BufTy).Contents (Elt F) → (⟨S4x256x1, .f32⟩ : BufTy).Contents (Elt F)),
    unary main_arg2 main_v6009 ((extractStridedSlice S4x1x16 ![0, 300, 0] · slices_S4x512x16_S4x1x16_0_300_0) : (⟨S4x512x16, .f32⟩ : BufTy).Contents (Elt F) → (⟨S4x1x16, .f32⟩ : BufTy).Contents (Elt F)),
    reshape main_v6009 main_v6010 rfl shapeCasts_S4x1x16_S4x16,
    unary main_v6010 main_v6011 (broadcastInDim S4x1x16 ![0, 2] bcast_S4x16_S4x1x16_0_2 : (⟨S4x16, .f32⟩ : BufTy).Contents (Elt F) → (⟨S4x1x16, .f32⟩ : BufTy).Contents (Elt F)),
    unary main_v6008 main_v6012 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6011 main_v6013 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6012 main_v6013 main_v6014 (mulf : (⟨S4x256x16, .f32⟩ : BufTy).Contents (Elt F) → (⟨S4x256x16, .f32⟩ : BufTy).Contents (Elt F) → (⟨S4x256x16, .f32⟩ : BufTy).Contents (Elt F)),
    binary main_v6005 main_v6014 main_v6015 (addf : (⟨S4x256x16, .f32⟩ : BufTy).Contents (Elt F) → (⟨S4x256x16, .f32⟩ : BufTy).Contents (Elt F) → (⟨S4x256x16, .f32⟩ : BufTy).Contents (Elt F)),
    unary main_arg3 main_v6016 ((extractStridedSlice S4x1x16 ![0, 300, 0] · slices_S4x512x16_S4x1x16_0_300_0) : (⟨S4x512x16, .f32⟩ : BufTy).Contents (Elt F) → (⟨S4x1x16, .f32⟩ : BufTy).Contents (Elt F)),
    reshape main_v6016 main_v6017 rfl shapeCasts_S4x1x16_S4x16,
    unary main_v6017 main_v6018 (broadcastInDim S4x1x16 ![0, 2] bcast_S4x16_S4x1x16_0_2 : (⟨S4x16, .f32⟩ : BufTy).Contents (Elt F) → (⟨S4x1x16, .f32⟩ : BufTy).Contents (Elt F)),
    unary main_v6018 main_v6019 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6015 main_v6019 main_v6020 (mulf : (⟨S4x256x16, .f32⟩ : BufTy).Contents (Elt F) → (⟨S4x256x16, .f32⟩ : BufTy).Contents (Elt F) → (⟨S4x256x16, .f32⟩ : BufTy).Contents (Elt F)),
    nullary main_cst_600 (constant S_ .f32 0x00000000#32),
    binary main_v6020 main_cst_600 main_v6021 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_601 (constantI S_ 32 300#32),
    unary main_c_601 main_v6022 (broadcastInDim S1 ![] bcast_S_S1 : (⟨S_, .i32⟩ : BufTy).Contents (Elt F) → (⟨S1, .i32⟩ : BufTy).Contents (Elt F)),
    ternary main_v6003 main_v6022 main_v6021 main_v6023 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps300_ok : (stepOps300 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step300_val (V : Valuation τ sig (Elt Ideal)) :
    after (stepOps300 (F := Ideal)) V (no_index (Proc.devRef .tc main_v6015)) = stepH 300 (by decide) (V (Proc.devRef .tc main_arg0)) (V (Proc.devRef .tc main_v3)) (V (Proc.devRef .tc main_arg2)) (V (Proc.devRef .tc main_v5995))
    ∧ after (stepOps300 (F := Ideal)) V (no_index (Proc.devRef .tc main_v6023)) = stepY 300 (by decide) (V (Proc.devRef .tc main_arg3)) (stepH 300 (by decide) (V (Proc.devRef .tc main_arg0)) (V (Proc.devRef .tc main_v3)) (V (Proc.devRef .tc main_arg2)) (V (Proc.devRef .tc main_v5995))) (V (Proc.devRef .tc main_v6003)) := by
  simp only [stepOps300]
  after_results_simp
  first | exact ⟨rfl, rfl⟩ | fail "value"
/-- Step 301 of the loop: operations 6629 … 6650 of the program. -/
abbrev stepOps301 : List (HloOp τ sig (Elt F)) :=
  [ unary main_v3 main_v6024 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6015 main_v6024 main_v6025 (mulf : (⟨S4x256x16, .f32⟩ : BufTy).Contents (Elt F) → (⟨S4x256x16, .f32⟩ : BufTy).Contents (Elt F) → (⟨S4x256x16, .f32⟩ : BufTy).Contents (Elt F)),
    unary main_arg0 main_v6026 ((extractStridedSlice S4x1x256 ![0, 301, 0] · slices_S4x512x256_S4x1x256_0_301_0) : (⟨S4x512x256, .f32⟩ : BufTy).Contents (Elt F) → (⟨S4x1x256, .f32⟩ : BufTy).Contents (Elt F)),
    reshape main_v6026 main_v6027 rfl shapeCasts_S4x1x256_S4x256,
    unary main_v6027 main_v6028 (broadcastInDim S4x256x1 ![0, 1] bcast_S4x256_S4x256x1_0_1 : (⟨S4x256, .f32⟩ : BufTy).Contents (Elt F) → (⟨S4x256x1, .f32⟩ : BufTy).Contents (Elt F)),
    unary main_arg2 main_v6029 ((extractStridedSlice S4x1x16 ![0, 301, 0] · slices_S4x512x16_S4x1x16_0_301_0) : (⟨S4x512x16, .f32⟩ : BufTy).Contents (Elt F) → (⟨S4x1x16, .f32⟩ : BufTy).Contents (Elt F)),
    reshape main_v6029 main_v6030 rfl shapeCasts_S4x1x16_S4x16,
    unary main_v6030 main_v6031 (broadcastInDim S4x1x16 ![0, 2] bcast_S4x16_S4x1x16_0_2 : (⟨S4x16, .f32⟩ : BufTy).Contents (Elt F) → (⟨S4x1x16, .f32⟩ : BufTy).Contents (Elt F)),
    unary main_v6028 main_v6032 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6031 main_v6033 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6032 main_v6033 main_v6034 (mulf : (⟨S4x256x16, .f32⟩ : BufTy).Contents (Elt F) → (⟨S4x256x16, .f32⟩ : BufTy).Contents (Elt F) → (⟨S4x256x16, .f32⟩ : BufTy).Contents (Elt F)),
    binary main_v6025 main_v6034 main_v6035 (addf : (⟨S4x256x16, .f32⟩ : BufTy).Contents (Elt F) → (⟨S4x256x16, .f32⟩ : BufTy).Contents (Elt F) → (⟨S4x256x16, .f32⟩ : BufTy).Contents (Elt F)),
    unary main_arg3 main_v6036 ((extractStridedSlice S4x1x16 ![0, 301, 0] · slices_S4x512x16_S4x1x16_0_301_0) : (⟨S4x512x16, .f32⟩ : BufTy).Contents (Elt F) → (⟨S4x1x16, .f32⟩ : BufTy).Contents (Elt F)),
    reshape main_v6036 main_v6037 rfl shapeCasts_S4x1x16_S4x16,
    unary main_v6037 main_v6038 (broadcastInDim S4x1x16 ![0, 2] bcast_S4x16_S4x1x16_0_2 : (⟨S4x16, .f32⟩ : BufTy).Contents (Elt F) → (⟨S4x1x16, .f32⟩ : BufTy).Contents (Elt F)),
    unary main_v6038 main_v6039 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6035 main_v6039 main_v6040 (mulf : (⟨S4x256x16, .f32⟩ : BufTy).Contents (Elt F) → (⟨S4x256x16, .f32⟩ : BufTy).Contents (Elt F) → (⟨S4x256x16, .f32⟩ : BufTy).Contents (Elt F)),
    nullary main_cst_602 (constant S_ .f32 0x00000000#32),
    binary main_v6040 main_cst_602 main_v6041 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_603 (constantI S_ 32 301#32),
    unary main_c_603 main_v6042 (broadcastInDim S1 ![] bcast_S_S1 : (⟨S_, .i32⟩ : BufTy).Contents (Elt F) → (⟨S1, .i32⟩ : BufTy).Contents (Elt F)),
    ternary main_v6023 main_v6042 main_v6041 main_v6043 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps301_ok : (stepOps301 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step301_val (V : Valuation τ sig (Elt Ideal)) :
    after (stepOps301 (F := Ideal)) V (no_index (Proc.devRef .tc main_v6035)) = stepH 301 (by decide) (V (Proc.devRef .tc main_arg0)) (V (Proc.devRef .tc main_v3)) (V (Proc.devRef .tc main_arg2)) (V (Proc.devRef .tc main_v6015))
    ∧ after (stepOps301 (F := Ideal)) V (no_index (Proc.devRef .tc main_v6043)) = stepY 301 (by decide) (V (Proc.devRef .tc main_arg3)) (stepH 301 (by decide) (V (Proc.devRef .tc main_arg0)) (V (Proc.devRef .tc main_v3)) (V (Proc.devRef .tc main_arg2)) (V (Proc.devRef .tc main_v6015))) (V (Proc.devRef .tc main_v6023)) := by
  simp only [stepOps301]
  after_results_simp
  first | exact ⟨rfl, rfl⟩ | fail "value"
/-- Step 302 of the loop: operations 6651 … 6672 of the program. -/
abbrev stepOps302 : List (HloOp τ sig (Elt F)) :=
  [ unary main_v3 main_v6044 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6035 main_v6044 main_v6045 (mulf : (⟨S4x256x16, .f32⟩ : BufTy).Contents (Elt F) → (⟨S4x256x16, .f32⟩ : BufTy).Contents (Elt F) → (⟨S4x256x16, .f32⟩ : BufTy).Contents (Elt F)),
    unary main_arg0 main_v6046 ((extractStridedSlice S4x1x256 ![0, 302, 0] · slices_S4x512x256_S4x1x256_0_302_0) : (⟨S4x512x256, .f32⟩ : BufTy).Contents (Elt F) → (⟨S4x1x256, .f32⟩ : BufTy).Contents (Elt F)),
    reshape main_v6046 main_v6047 rfl shapeCasts_S4x1x256_S4x256,
    unary main_v6047 main_v6048 (broadcastInDim S4x256x1 ![0, 1] bcast_S4x256_S4x256x1_0_1 : (⟨S4x256, .f32⟩ : BufTy).Contents (Elt F) → (⟨S4x256x1, .f32⟩ : BufTy).Contents (Elt F)),
    unary main_arg2 main_v6049 ((extractStridedSlice S4x1x16 ![0, 302, 0] · slices_S4x512x16_S4x1x16_0_302_0) : (⟨S4x512x16, .f32⟩ : BufTy).Contents (Elt F) → (⟨S4x1x16, .f32⟩ : BufTy).Contents (Elt F)),
    reshape main_v6049 main_v6050 rfl shapeCasts_S4x1x16_S4x16,
    unary main_v6050 main_v6051 (broadcastInDim S4x1x16 ![0, 2] bcast_S4x16_S4x1x16_0_2 : (⟨S4x16, .f32⟩ : BufTy).Contents (Elt F) → (⟨S4x1x16, .f32⟩ : BufTy).Contents (Elt F)),
    unary main_v6048 main_v6052 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6051 main_v6053 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6052 main_v6053 main_v6054 (mulf : (⟨S4x256x16, .f32⟩ : BufTy).Contents (Elt F) → (⟨S4x256x16, .f32⟩ : BufTy).Contents (Elt F) → (⟨S4x256x16, .f32⟩ : BufTy).Contents (Elt F)),
    binary main_v6045 main_v6054 main_v6055 (addf : (⟨S4x256x16, .f32⟩ : BufTy).Contents (Elt F) → (⟨S4x256x16, .f32⟩ : BufTy).Contents (Elt F) → (⟨S4x256x16, .f32⟩ : BufTy).Contents (Elt F)),
    unary main_arg3 main_v6056 ((extractStridedSlice S4x1x16 ![0, 302, 0] · slices_S4x512x16_S4x1x16_0_302_0) : (⟨S4x512x16, .f32⟩ : BufTy).Contents (Elt F) → (⟨S4x1x16, .f32⟩ : BufTy).Contents (Elt F)),
    reshape main_v6056 main_v6057 rfl shapeCasts_S4x1x16_S4x16,
    unary main_v6057 main_v6058 (broadcastInDim S4x1x16 ![0, 2] bcast_S4x16_S4x1x16_0_2 : (⟨S4x16, .f32⟩ : BufTy).Contents (Elt F) → (⟨S4x1x16, .f32⟩ : BufTy).Contents (Elt F)),
    unary main_v6058 main_v6059 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6055 main_v6059 main_v6060 (mulf : (⟨S4x256x16, .f32⟩ : BufTy).Contents (Elt F) → (⟨S4x256x16, .f32⟩ : BufTy).Contents (Elt F) → (⟨S4x256x16, .f32⟩ : BufTy).Contents (Elt F)),
    nullary main_cst_604 (constant S_ .f32 0x00000000#32),
    binary main_v6060 main_cst_604 main_v6061 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_605 (constantI S_ 32 302#32),
    unary main_c_605 main_v6062 (broadcastInDim S1 ![] bcast_S_S1 : (⟨S_, .i32⟩ : BufTy).Contents (Elt F) → (⟨S1, .i32⟩ : BufTy).Contents (Elt F)),
    ternary main_v6043 main_v6062 main_v6061 main_v6063 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps302_ok : (stepOps302 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step302_val (V : Valuation τ sig (Elt Ideal)) :
    after (stepOps302 (F := Ideal)) V (no_index (Proc.devRef .tc main_v6055)) = stepH 302 (by decide) (V (Proc.devRef .tc main_arg0)) (V (Proc.devRef .tc main_v3)) (V (Proc.devRef .tc main_arg2)) (V (Proc.devRef .tc main_v6035))
    ∧ after (stepOps302 (F := Ideal)) V (no_index (Proc.devRef .tc main_v6063)) = stepY 302 (by decide) (V (Proc.devRef .tc main_arg3)) (stepH 302 (by decide) (V (Proc.devRef .tc main_arg0)) (V (Proc.devRef .tc main_v3)) (V (Proc.devRef .tc main_arg2)) (V (Proc.devRef .tc main_v6035))) (V (Proc.devRef .tc main_v6043)) := by
  simp only [stepOps302]
  after_results_simp
  first | exact ⟨rfl, rfl⟩ | fail "value"
/-- Step 303 of the loop: operations 6673 … 6694 of the program. -/
abbrev stepOps303 : List (HloOp τ sig (Elt F)) :=
  [ unary main_v3 main_v6064 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6055 main_v6064 main_v6065 (mulf : (⟨S4x256x16, .f32⟩ : BufTy).Contents (Elt F) → (⟨S4x256x16, .f32⟩ : BufTy).Contents (Elt F) → (⟨S4x256x16, .f32⟩ : BufTy).Contents (Elt F)),
    unary main_arg0 main_v6066 ((extractStridedSlice S4x1x256 ![0, 303, 0] · slices_S4x512x256_S4x1x256_0_303_0) : (⟨S4x512x256, .f32⟩ : BufTy).Contents (Elt F) → (⟨S4x1x256, .f32⟩ : BufTy).Contents (Elt F)),
    reshape main_v6066 main_v6067 rfl shapeCasts_S4x1x256_S4x256,
    unary main_v6067 main_v6068 (broadcastInDim S4x256x1 ![0, 1] bcast_S4x256_S4x256x1_0_1 : (⟨S4x256, .f32⟩ : BufTy).Contents (Elt F) → (⟨S4x256x1, .f32⟩ : BufTy).Contents (Elt F)),
    unary main_arg2 main_v6069 ((extractStridedSlice S4x1x16 ![0, 303, 0] · slices_S4x512x16_S4x1x16_0_303_0) : (⟨S4x512x16, .f32⟩ : BufTy).Contents (Elt F) → (⟨S4x1x16, .f32⟩ : BufTy).Contents (Elt F)),
    reshape main_v6069 main_v6070 rfl shapeCasts_S4x1x16_S4x16,
    unary main_v6070 main_v6071 (broadcastInDim S4x1x16 ![0, 2] bcast_S4x16_S4x1x16_0_2 : (⟨S4x16, .f32⟩ : BufTy).Contents (Elt F) → (⟨S4x1x16, .f32⟩ : BufTy).Contents (Elt F)),
    unary main_v6068 main_v6072 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6071 main_v6073 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6072 main_v6073 main_v6074 (mulf : (⟨S4x256x16, .f32⟩ : BufTy).Contents (Elt F) → (⟨S4x256x16, .f32⟩ : BufTy).Contents (Elt F) → (⟨S4x256x16, .f32⟩ : BufTy).Contents (Elt F)),
    binary main_v6065 main_v6074 main_v6075 (addf : (⟨S4x256x16, .f32⟩ : BufTy).Contents (Elt F) → (⟨S4x256x16, .f32⟩ : BufTy).Contents (Elt F) → (⟨S4x256x16, .f32⟩ : BufTy).Contents (Elt F)),
    unary main_arg3 main_v6076 ((extractStridedSlice S4x1x16 ![0, 303, 0] · slices_S4x512x16_S4x1x16_0_303_0) : (⟨S4x512x16, .f32⟩ : BufTy).Contents (Elt F) → (⟨S4x1x16, .f32⟩ : BufTy).Contents (Elt F)),
    reshape main_v6076 main_v6077 rfl shapeCasts_S4x1x16_S4x16,
    unary main_v6077 main_v6078 (broadcastInDim S4x1x16 ![0, 2] bcast_S4x16_S4x1x16_0_2 : (⟨S4x16, .f32⟩ : BufTy).Contents (Elt F) → (⟨S4x1x16, .f32⟩ : BufTy).Contents (Elt F)),
    unary main_v6078 main_v6079 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6075 main_v6079 main_v6080 (mulf : (⟨S4x256x16, .f32⟩ : BufTy).Contents (Elt F) → (⟨S4x256x16, .f32⟩ : BufTy).Contents (Elt F) → (⟨S4x256x16, .f32⟩ : BufTy).Contents (Elt F)),
    nullary main_cst_606 (constant S_ .f32 0x00000000#32),
    binary main_v6080 main_cst_606 main_v6081 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_607 (constantI S_ 32 303#32),
    unary main_c_607 main_v6082 (broadcastInDim S1 ![] bcast_S_S1 : (⟨S_, .i32⟩ : BufTy).Contents (Elt F) → (⟨S1, .i32⟩ : BufTy).Contents (Elt F)),
    ternary main_v6063 main_v6082 main_v6081 main_v6083 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps303_ok : (stepOps303 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step303_val (V : Valuation τ sig (Elt Ideal)) :
    after (stepOps303 (F := Ideal)) V (no_index (Proc.devRef .tc main_v6075)) = stepH 303 (by decide) (V (Proc.devRef .tc main_arg0)) (V (Proc.devRef .tc main_v3)) (V (Proc.devRef .tc main_arg2)) (V (Proc.devRef .tc main_v6055))
    ∧ after (stepOps303 (F := Ideal)) V (no_index (Proc.devRef .tc main_v6083)) = stepY 303 (by decide) (V (Proc.devRef .tc main_arg3)) (stepH 303 (by decide) (V (Proc.devRef .tc main_arg0)) (V (Proc.devRef .tc main_v3)) (V (Proc.devRef .tc main_arg2)) (V (Proc.devRef .tc main_v6055))) (V (Proc.devRef .tc main_v6063)) := by
  simp only [stepOps303]
  after_results_simp
  first | exact ⟨rfl, rfl⟩ | fail "value"

end Cert.ReferenceIdeal.RefRun

end
-- ==== Proof.RefTableStep19.lean ====
/-
  Steps 304 … 319 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 304 of the loop: operations 6695 … 6716 of the program. -/
abbrev stepOps304 : List (HloOp τ sig (Elt F)) :=
  [ unary main_v3 main_v6084 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6075 main_v6084 main_v6085 (mulf : (⟨S4x256x16, .f32⟩ : BufTy).Contents (Elt F) → (⟨S4x256x16, .f32⟩ : BufTy).Contents (Elt F) → (⟨S4x256x16, .f32⟩ : BufTy).Contents (Elt F)),
    unary main_arg0 main_v6086 ((extractStridedSlice S4x1x256 ![0, 304, 0] · slices_S4x512x256_S4x1x256_0_304_0) : (⟨S4x512x256, .f32⟩ : BufTy).Contents (Elt F) → (⟨S4x1x256, .f32⟩ : BufTy).Contents (Elt F)),
    reshape main_v6086 main_v6087 rfl shapeCasts_S4x1x256_S4x256,
    unary main_v6087 main_v6088 (broadcastInDim S4x256x1 ![0, 1] bcast_S4x256_S4x256x1_0_1 : (⟨S4x256, .f32⟩ : BufTy).Contents (Elt F) → (⟨S4x256x1, .f32⟩ : BufTy).Contents (Elt F)),
    unary main_arg2 main_v6089 ((extractStridedSlice S4x1x16 ![0, 304, 0] · slices_S4x512x16_S4x1x16_0_304_0) : (⟨S4x512x16, .f32⟩ : BufTy).Contents (Elt F) → (⟨S4x1x16, .f32⟩ : BufTy).Contents (Elt F)),
    reshape main_v6089 main_v6090 rfl shapeCasts_S4x1x16_S4x16,
    unary main_v6090 main_v6091 (broadcastInDim S4x1x16 ![0, 2] bcast_S4x16_S4x1x16_0_2 : (⟨S4x16, .f32⟩ : BufTy).Contents (Elt F) → (⟨S4x1x16, .f32⟩ : BufTy).Contents (Elt F)),
    unary main_v6088 main_v6092 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6091 main_v6093 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6092 main_v6093 main_v6094 (mulf : (⟨S4x256x16, .f32⟩ : BufTy).Contents (Elt F) → (⟨S4x256x16, .f32⟩ : BufTy).Contents (Elt F) → (⟨S4x256x16, .f32⟩ : BufTy).Contents (Elt F)),
    binary main_v6085 main_v6094 main_v6095 (addf : (⟨S4x256x16, .f32⟩ : BufTy).Contents (Elt F) → (⟨S4x256x16, .f32⟩ : BufTy).Contents (Elt F) → (⟨S4x256x16, .f32⟩ : BufTy).Contents (Elt F)),
    unary main_arg3 main_v6096 ((extractStridedSlice S4x1x16 ![0, 304, 0] · slices_S4x512x16_S4x1x16_0_304_0) : (⟨S4x512x16, .f32⟩ : BufTy).Contents (Elt F) → (⟨S4x1x16, .f32⟩ : BufTy).Contents (Elt F)),
    reshape main_v6096 main_v6097 rfl shapeCasts_S4x1x16_S4x16,
    unary main_v6097 main_v6098 (broadcastInDim S4x1x16 ![0, 2] bcast_S4x16_S4x1x16_0_2 : (⟨S4x16, .f32⟩ : BufTy).Contents (Elt F) → (⟨S4x1x16, .f32⟩ : BufTy).Contents (Elt F)),
    unary main_v6098 main_v6099 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6095 main_v6099 main_v6100 (mulf : (⟨S4x256x16, .f32⟩ : BufTy).Contents (Elt F) → (⟨S4x256x16, .f32⟩ : BufTy).Contents (Elt F) → (⟨S4x256x16, .f32⟩ : BufTy).Contents (Elt F)),
    nullary main_cst_608 (constant S_ .f32 0x00000000#32),
    binary main_v6100 main_cst_608 main_v6101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_609 (constantI S_ 32 304#32),
    unary main_c_609 main_v6102 (broadcastInDim S1 ![] bcast_S_S1 : (⟨S_, .i32⟩ : BufTy).Contents (Elt F) → (⟨S1, .i32⟩ : BufTy).Contents (Elt F)),
    ternary main_v6083 main_v6102 main_v6101 main_v6103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps304_ok : (stepOps304 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step304_val (V : Valuation τ sig (Elt Ideal)) :
    after (stepOps304 (F := Ideal)) V (no_index (Proc.devRef .tc main_v6095)) = stepH 304 (by decide) (V (Proc.devRef .tc main_arg0)) (V (Proc.devRef .tc main_v3)) (V (Proc.devRef .tc main_arg2)) (V (Proc.devRef .tc main_v6075))
    ∧ after (stepOps304 (F := Ideal)) V (no_index (Proc.devRef .tc main_v6103)) = stepY 304 (by decide) (V (Proc.devRef .tc main_arg3)) (stepH 304 (by decide) (V (Proc.devRef .tc main_arg0)) (V (Proc.devRef .tc main_v3)) (V (Proc.devRef .tc main_arg2)) (V (Proc.devRef .tc main_v6075))) (V (Proc.devRef .tc main_v6083)) := by
  simp only [stepOps304]
  after_results_simp
  first | exact ⟨rfl, rfl⟩ | fail "value"
/-- Step 305 of the loop: operations 6717 … 6738 of the program. -/
abbrev stepOps305 : List (HloOp τ sig (Elt F)) :=
  [ unary main_v3 main_v6104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6095 main_v6104 main_v6105 (mulf : (⟨S4x256x16, .f32⟩ : BufTy).Contents (Elt F) → (⟨S4x256x16, .f32⟩ : BufTy).Contents (Elt F) → (⟨S4x256x16, .f32⟩ : BufTy).Contents (Elt F)),
    unary main_arg0 main_v6106 ((extractStridedSlice S4x1x256 ![0, 305, 0] · slices_S4x512x256_S4x1x256_0_305_0) : (⟨S4x512x256, .f32⟩ : BufTy).Contents (Elt F) → (⟨S4x1x256, .f32⟩ : BufTy).Contents (Elt F)),
    reshape main_v6106 main_v6107 rfl shapeCasts_S4x1x256_S4x256,
    unary main_v6107 main_v6108 (broadcastInDim S4x256x1 ![0, 1] bcast_S4x256_S4x256x1_0_1 : (⟨S4x256, .f32⟩ : BufTy).Contents (Elt F) → (⟨S4x256x1, .f32⟩ : BufTy).Contents (Elt F)),
    unary main_arg2 main_v6109 ((extractStridedSlice S4x1x16 ![0, 305, 0] · slices_S4x512x16_S4x1x16_0_305_0) : (⟨S4x512x16, .f32⟩ : BufTy).Contents (Elt F) → (⟨S4x1x16, .f32⟩ : BufTy).Contents (Elt F)),
    reshape main_v6109 main_v6110 rfl shapeCasts_S4x1x16_S4x16,
    unary main_v6110 main_v6111 (broadcastInDim S4x1x16 ![0, 2] bcast_S4x16_S4x1x16_0_2 : (⟨S4x16, .f32⟩ : BufTy).Contents (Elt F) → (⟨S4x1x16, .f32⟩ : BufTy).Contents (Elt F)),
    unary main_v6108 main_v6112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6111 main_v6113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6112 main_v6113 main_v6114 (mulf : (⟨S4x256x16, .f32⟩ : BufTy).Contents (Elt F) → (⟨S4x256x16, .f32⟩ : BufTy).Contents (Elt F) → (⟨S4x256x16, .f32⟩ : BufTy).Contents (Elt F)),
    binary main_v6105 main_v6114 main_v6115 (addf : (⟨S4x256x16, .f32⟩ : BufTy).Contents (Elt F) → (⟨S4x256x16, .f32⟩ : BufTy).Contents (Elt F) → (⟨S4x256x16, .f32⟩ : BufTy).Contents (Elt F)),
    unary main_arg3 main_v6116 ((extractStridedSlice S4x1x16 ![0, 305, 0] · slices_S4x512x16_S4x1x16_0_305_0) : (⟨S4x512x16, .f32⟩ : BufTy).Contents (Elt F) → (⟨S4x1x16, .f32⟩ : BufTy).Contents (Elt F)),
    reshape main_v6116 main_v6117 rfl shapeCasts_S4x1x16_S4x16,
    unary main_v6117 main_v6118 (broadcastInDim S4x1x16 ![0, 2] bcast_S4x16_S4x1x16_0_2 : (⟨S4x16, .f32⟩ : BufTy).Contents (Elt F) → (⟨S4x1x16, .f32⟩ : BufTy).Contents (Elt F)),
    unary main_v6118 main_v6119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6115 main_v6119 main_v6120 (mulf : (⟨S4x256x16, .f32⟩ : BufTy).Contents (Elt F) → (⟨S4x256x16, .f32⟩ : BufTy).Contents (Elt F) → (⟨S4x256x16, .f32⟩ : BufTy).Contents (Elt F)),
    nullary main_cst_610 (constant S_ .f32 0x00000000#32),
    binary main_v6120 main_cst_610 main_v6121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_611 (constantI S_ 32 305#32),
    unary main_c_611 main_v6122 (broadcastInDim S1 ![] bcast_S_S1 : (⟨S_, .i32⟩ : BufTy).Contents (Elt F) → (⟨S1, .i32⟩ : BufTy).Contents (Elt F)),
    ternary main_v6103 main_v6122 main_v6121 main_v6123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps305_ok : (stepOps305 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step305_val (V : Valuation τ sig (Elt Ideal)) :
    after (stepOps305 (F := Ideal)) V (no_index (Proc.devRef .tc main_v6115)) = stepH 305 (by decide) (V (Proc.devRef .tc main_arg0)) (V (Proc.devRef .tc main_v3)) (V (Proc.devRef .tc main_arg2)) (V (Proc.devRef .tc main_v6095))
    ∧ after (stepOps305 (F := Ideal)) V (no_index (Proc.devRef .tc main_v6123)) = stepY 305 (by decide) (V (Proc.devRef .tc main_arg3)) (stepH 305 (by decide) (V (Proc.devRef .tc main_arg0)) (V (Proc.devRef .tc main_v3)) (V (Proc.devRef .tc main_arg2)) (V (Proc.devRef .tc main_v6095))) (V (Proc.devRef .tc main_v6103)) := by
  simp only [stepOps305]
  after_results_simp
  first | exact ⟨rfl, rfl⟩ | fail "value"
/-- Step 306 of the loop: operations 6739 … 6760 of the program. -/
abbrev stepOps306 : List (HloOp τ sig (Elt F)) :=
  [ unary main_v3 main_v6124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6115 main_v6124 main_v6125 (mulf : (⟨S4x256x16, .f32⟩ : BufTy).Contents (Elt F) → (⟨S4x256x16, .f32⟩ : BufTy).Contents (Elt F) → (⟨S4x256x16, .f32⟩ : BufTy).Contents (Elt F)),
    unary main_arg0 main_v6126 ((extractStridedSlice S4x1x256 ![0, 306, 0] · slices_S4x512x256_S4x1x256_0_306_0) : (⟨S4x512x256, .f32⟩ : BufTy).Contents (Elt F) → (⟨S4x1x256, .f32⟩ : BufTy).Contents (Elt F)),
    reshape main_v6126 main_v6127 rfl shapeCasts_S4x1x256_S4x256,
    unary main_v6127 main_v6128 (broadcastInDim S4x256x1 ![0, 1] bcast_S4x256_S4x256x1_0_1 : (⟨S4x256, .f32⟩ : BufTy).Contents (Elt F) → (⟨S4x256x1, .f32⟩ : BufTy).Contents (Elt F)),
    unary main_arg2 main_v6129 ((extractStridedSlice S4x1x16 ![0, 306, 0] · slices_S4x512x16_S4x1x16_0_306_0) : (⟨S4x512x16, .f32⟩ : BufTy).Contents (Elt F) → (⟨S4x1x16, .f32⟩ : BufTy).Contents (Elt F)),
    reshape main_v6129 main_v6130 rfl shapeCasts_S4x1x16_S4x16,
    unary main_v6130 main_v6131 (broadcastInDim S4x1x16 ![0, 2] bcast_S4x16_S4x1x16_0_2 : (⟨S4x16, .f32⟩ : BufTy).Contents (Elt F) → (⟨S4x1x16, .f32⟩ : BufTy).Contents (Elt F)),
    unary main_v6128 main_v6132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6131 main_v6133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6132 main_v6133 main_v6134 (mulf : (⟨S4x256x16, .f32⟩ : BufTy).Contents (Elt F) → (⟨S4x256x16, .f32⟩ : BufTy).Contents (Elt F) → (⟨S4x256x16, .f32⟩ : BufTy).Contents (Elt F)),
    binary main_v6125 main_v6134 main_v6135 (addf : (⟨S4x256x16, .f32⟩ : BufTy).Contents (Elt F) → (⟨S4x256x16, .f32⟩ : BufTy).Contents (Elt F) → (⟨S4x256x16, .f32⟩ : BufTy).Contents (Elt F)),
    unary main_arg3 main_v6136 ((extractStridedSlice S4x1x16 ![0, 306, 0] · slices_S4x512x16_S4x1x16_0_306_0) : (⟨S4x512x16, .f32⟩ : BufTy).Contents (Elt F) → (⟨S4x1x16, .f32⟩ : BufTy).Contents (Elt F)),
    reshape main_v6136 main_v6137 rfl shapeCasts_S4x1x16_S4x16,
    unary main_v6137 main_v6138 (broadcastInDim S4x1x16 ![0, 2] bcast_S4x16_S4x1x16_0_2 : (⟨S4x16, .f32⟩ : BufTy).Contents (Elt F) → (⟨S4x1x16, .f32⟩ : BufTy).Contents (Elt F)),
    unary main_v6138 main_v6139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6135 main_v6139 main_v6140 (mulf : (⟨S4x256x16, .f32⟩ : BufTy).Contents (Elt F) → (⟨S4x256x16, .f32⟩ : BufTy).Contents (Elt F) → (⟨S4x256x16, .f32⟩ : BufTy).Contents (Elt F)),
    nullary main_cst_612 (constant S_ .f32 0x00000000#32),
    binary main_v6140 main_cst_612 main_v6141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_613 (constantI S_ 32 306#32),
    unary main_c_613 main_v6142 (broadcastInDim S1 ![] bcast_S_S1 : (⟨S_, .i32⟩ : BufTy).Contents (Elt F) → (⟨S1, .i32⟩ : BufTy).Contents (Elt F)),
    ternary main_v6123 main_v6142 main_v6141 main_v6143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps306_ok : (stepOps306 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step306_val (V : Valuation τ sig (Elt Ideal)) :
    after (stepOps306 (F := Ideal)) V (no_index (Proc.devRef .tc main_v6135)) = stepH 306 (by decide) (V (Proc.devRef .tc main_arg0)) (V (Proc.devRef .tc main_v3)) (V (Proc.devRef .tc main_arg2)) (V (Proc.devRef .tc main_v6115))
    ∧ after (stepOps306 (F := Ideal)) V (no_index (Proc.devRef .tc main_v6143)) = stepY 306 (by decide) (V (Proc.devRef .tc main_arg3)) (stepH 306 (by decide) (V (Proc.devRef .tc main_arg0)) (V (Proc.devRef .tc main_v3)) (V (Proc.devRef .tc main_arg2)) (V (Proc.devRef .tc main_v6115))) (V (Proc.devRef .tc main_v6123)) := by
  simp only [stepOps306]
  after_results_simp
  first | exact ⟨rfl, rfl⟩ | fail "value"
/-- Step 307 of the loop: operations 6761 … 6782 of the program. -/
abbrev stepOps307 : List (HloOp τ sig (Elt F)) :=
  [ unary main_v3 main_v6144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6135 main_v6144 main_v6145 (mulf : (⟨S4x256x16, .f32⟩ : BufTy).Contents (Elt F) → (⟨S4x256x16, .f32⟩ : BufTy).Contents (Elt F) → (⟨S4x256x16, .f32⟩ : BufTy).Contents (Elt F)),
    unary main_arg0 main_v6146 ((extractStridedSlice S4x1x256 ![0, 307, 0] · slices_S4x512x256_S4x1x256_0_307_0) : (⟨S4x512x256, .f32⟩ : BufTy).Contents (Elt F) → (⟨S4x1x256, .f32⟩ : BufTy).Contents (Elt F)),
    reshape main_v6146 main_v6147 rfl shapeCasts_S4x1x256_S4x256,
    unary main_v6147 main_v6148 (broadcastInDim S4x256x1 ![0, 1] bcast_S4x256_S4x256x1_0_1 : (⟨S4x256, .f32⟩ : BufTy).Contents (Elt F) → (⟨S4x256x1, .f32⟩ : BufTy).Contents (Elt F)),
    unary main_arg2 main_v6149 ((extractStridedSlice S4x1x16 ![0, 307, 0] · slices_S4x512x16_S4x1x16_0_307_0) : (⟨S4x512x16, .f32⟩ : BufTy).Contents (Elt F) → (⟨S4x1x16, .f32⟩ : BufTy).Contents (Elt F)),
    reshape main_v6149 main_v6150 rfl shapeCasts_S4x1x16_S4x16,
    unary main_v6150 main_v6151 (broadcastInDim S4x1x16 ![0, 2] bcast_S4x16_S4x1x16_0_2 : (⟨S4x16, .f32⟩ : BufTy).Contents (Elt F) → (⟨S4x1x16, .f32⟩ : BufTy).Contents (Elt F)),
    unary main_v6148 main_v6152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6151 main_v6153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6152 main_v6153 main_v6154 (mulf : (⟨S4x256x16, .f32⟩ : BufTy).Contents (Elt F) → (⟨S4x256x16, .f32⟩ : BufTy).Contents (Elt F) → (⟨S4x256x16, .f32⟩ : BufTy).Contents (Elt F)),
    binary main_v6145 main_v6154 main_v6155 (addf : (⟨S4x256x16, .f32⟩ : BufTy).Contents (Elt F) → (⟨S4x256x16, .f32⟩ : BufTy).Contents (Elt F) → (⟨S4x256x16, .f32⟩ : BufTy).Contents (Elt F)),
    unary main_arg3 main_v6156 ((extractStridedSlice S4x1x16 ![0, 307, 0] · slices_S4x512x16_S4x1x16_0_307_0) : (⟨S4x512x16, .f32⟩ : BufTy).Contents (Elt F) → (⟨S4x1x16, .f32⟩ : BufTy).Contents (Elt F)),
    reshape main_v6156 main_v6157 rfl shapeCasts_S4x1x16_S4x16,
    unary main_v6157 main_v6158 (broadcastInDim S4x1x16 ![0, 2] bcast_S4x16_S4x1x16_0_2 : (⟨S4x16, .f32⟩ : BufTy).Contents (Elt F) → (⟨S4x1x16, .f32⟩ : BufTy).Contents (Elt F)),
    unary main_v6158 main_v6159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6155 main_v6159 main_v6160 (mulf : (⟨S4x256x16, .f32⟩ : BufTy).Contents (Elt F) → (⟨S4x256x16, .f32⟩ : BufTy).Contents (Elt F) → (⟨S4x256x16, .f32⟩ : BufTy).Contents (Elt F)),
    nullary main_cst_614 (constant S_ .f32 0x00000000#32),
    binary main_v6160 main_cst_614 main_v6161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_615 (constantI S_ 32 307#32),
    unary main_c_615 main_v6162 (broadcastInDim S1 ![] bcast_S_S1 : (⟨S_, .i32⟩ : BufTy).Contents (Elt F) → (⟨S1, .i32⟩ : BufTy).Contents (Elt F)),
    ternary main_v6143 main_v6162 main_v6161 main_v6163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps307_ok : (stepOps307 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step307_val (V : Valuation τ sig (Elt Ideal)) :
    after (stepOps307 (F := Ideal)) V (no_index (Proc.devRef .tc main_v6155)) = stepH 307 (by decide) (V (Proc.devRef .tc main_arg0)) (V (Proc.devRef .tc main_v3)) (V (Proc.devRef .tc main_arg2)) (V (Proc.devRef .tc main_v6135))
    ∧ after (stepOps307 (F := Ideal)) V (no_index (Proc.devRef .tc main_v6163)) = stepY 307 (by decide) (V (Proc.devRef .tc main_arg3)) (stepH 307 (by decide) (V (Proc.devRef .tc main_arg0)) (V (Proc.devRef .tc main_v3)) (V (Proc.devRef .tc main_arg2)) (V (Proc.devRef .tc main_v6135))) (V (Proc.devRef .tc main_v6143)) := by
  simp only [stepOps307]
  after_results_simp
  first | exact ⟨rfl, rfl⟩ | fail "value"
/-- Step 308 of the loop: operations 6783 … 6804 of the program. -/
abbrev stepOps308 : List (HloOp τ sig (Elt F)) :=
  [ unary main_v3 main_v6164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6155 main_v6164 main_v6165 (mulf : (⟨S4x256x16, .f32⟩ : BufTy).Contents (Elt F) → (⟨S4x256x16, .f32⟩ : BufTy).Contents (Elt F) → (⟨S4x256x16, .f32⟩ : BufTy).Contents (Elt F)),
    unary main_arg0 main_v6166 ((extractStridedSlice S4x1x256 ![0, 308, 0] · slices_S4x512x256_S4x1x256_0_308_0) : (⟨S4x512x256, .f32⟩ : BufTy).Contents (Elt F) → (⟨S4x1x256, .f32⟩ : BufTy).Contents (Elt F)),
    reshape main_v6166 main_v6167 rfl shapeCasts_S4x1x256_S4x256,
    unary main_v6167 main_v6168 (broadcastInDim S4x256x1 ![0, 1] bcast_S4x256_S4x256x1_0_1 : (⟨S4x256, .f32⟩ : BufTy).Contents (Elt F) → (⟨S4x256x1, .f32⟩ : BufTy).Contents (Elt F)),
    unary main_arg2 main_v6169 ((extractStridedSlice S4x1x16 ![0, 308, 0] · slices_S4x512x16_S4x1x16_0_308_0) : (⟨S4x512x16, .f32⟩ : BufTy).Contents (Elt F) → (⟨S4x1x16, .f32⟩ : BufTy).Contents (Elt F)),
    reshape main_v6169 main_v6170 rfl shapeCasts_S4x1x16_S4x16,
    unary main_v6170 main_v6171 (broadcastInDim S4x1x16 ![0, 2] bcast_S4x16_S4x1x16_0_2 : (⟨S4x16, .f32⟩ : BufTy).Contents (Elt F) → (⟨S4x1x16, .f32⟩ : BufTy).Contents (Elt F)),
    unary main_v6168 main_v6172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6171 main_v6173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6172 main_v6173 main_v6174 (mulf : (⟨S4x256x16, .f32⟩ : BufTy).Contents (Elt F) → (⟨S4x256x16, .f32⟩ : BufTy).Contents (Elt F) → (⟨S4x256x16, .f32⟩ : BufTy).Contents (Elt F)),
    binary main_v6165 main_v6174 main_v6175 (addf : (⟨S4x256x16, .f32⟩ : BufTy).Contents (Elt F) → (⟨S4x256x16, .f32⟩ : BufTy).Contents (Elt F) → (⟨S4x256x16, .f32⟩ : BufTy).Contents (Elt F)),
    unary main_arg3 main_v6176 ((extractStridedSlice S4x1x16 ![0, 308, 0] · slices_S4x512x16_S4x1x16_0_308_0) : (⟨S4x512x16, .f32⟩ : BufTy).Contents (Elt F) → (⟨S4x1x16, .f32⟩ : BufTy).Contents (Elt F)),
    reshape main_v6176 main_v6177 rfl shapeCasts_S4x1x16_S4x16,
    unary main_v6177 main_v6178 (broadcastInDim S4x1x16 ![0, 2] bcast_S4x16_S4x1x16_0_2 : (⟨S4x16, .f32⟩ : BufTy).Contents (Elt F) → (⟨S4x1x16, .f32⟩ : BufTy).Contents (Elt F)),
    unary main_v6178 main_v6179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6175 main_v6179 main_v6180 (mulf : (⟨S4x256x16, .f32⟩ : BufTy).Contents (Elt F) → (⟨S4x256x16, .f32⟩ : BufTy).Contents (Elt F) → (⟨S4x256x16, .f32⟩ : BufTy).Contents (Elt F)),
    nullary main_cst_616 (constant S_ .f32 0x00000000#32),
    binary main_v6180 main_cst_616 main_v6181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_617 (constantI S_ 32 308#32),
    unary main_c_617 main_v6182 (broadcastInDim S1 ![] bcast_S_S1 : (⟨S_, .i32⟩ : BufTy).Contents (Elt F) → (⟨S1, .i32⟩ : BufTy).Contents (Elt F)),
    ternary main_v6163 main_v6182 main_v6181 main_v6183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps308_ok : (stepOps308 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step308_val (V : Valuation τ sig (Elt Ideal)) :
    after (stepOps308 (F := Ideal)) V (no_index (Proc.devRef .tc main_v6175)) = stepH 308 (by decide) (V (Proc.devRef .tc main_arg0)) (V (Proc.devRef .tc main_v3)) (V (Proc.devRef .tc main_arg2)) (V (Proc.devRef .tc main_v6155))
    ∧ after (stepOps308 (F := Ideal)) V (no_index (Proc.devRef .tc main_v6183)) = stepY 308 (by decide) (V (Proc.devRef .tc main_arg3)) (stepH 308 (by decide) (V (Proc.devRef .tc main_arg0)) (V (Proc.devRef .tc main_v3)) (V (Proc.devRef .tc main_arg2)) (V (Proc.devRef .tc main_v6155))) (V (Proc.devRef .tc main_v6163)) := by
  simp only [stepOps308]
  after_results_simp
  first | exact ⟨rfl, rfl⟩ | fail "value"
/-- Step 309 of the loop: operations 6805 … 6826 of the program. -/
abbrev stepOps309 : List (HloOp τ sig (Elt F)) :=
  [ unary main_v3 main_v6184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6175 main_v6184 main_v6185 (mulf : (⟨S4x256x16, .f32⟩ : BufTy).Contents (Elt F) → (⟨S4x256x16, .f32⟩ : BufTy).Contents (Elt F) → (⟨S4x256x16, .f32⟩ : BufTy).Contents (Elt F)),
    unary main_arg0 main_v6186 ((extractStridedSlice S4x1x256 ![0, 309, 0] · slices_S4x512x256_S4x1x256_0_309_0) : (⟨S4x512x256, .f32⟩ : BufTy).Contents (Elt F) → (⟨S4x1x256, .f32⟩ : BufTy).Contents (Elt F)),
    reshape main_v6186 main_v6187 rfl shapeCasts_S4x1x256_S4x256,
    unary main_v6187 main_v6188 (broadcastInDim S4x256x1 ![0, 1] bcast_S4x256_S4x256x1_0_1 : (⟨S4x256, .f32⟩ : BufTy).Contents (Elt F) → (⟨S4x256x1, .f32⟩ : BufTy).Contents (Elt F)),
    unary main_arg2 main_v6189 ((extractStridedSlice S4x1x16 ![0, 309, 0] · slices_S4x512x16_S4x1x16_0_309_0) : (⟨S4x512x16, .f32⟩ : BufTy).Contents (Elt F) → (⟨S4x1x16, .f32⟩ : BufTy).Contents (Elt F)),
    reshape main_v6189 main_v6190 rfl shapeCasts_S4x1x16_S4x16,
    unary main_v6190 main_v6191 (broadcastInDim S4x1x16 ![0, 2] bcast_S4x16_S4x1x16_0_2 : (⟨S4x16, .f32⟩ : BufTy).Contents (Elt F) → (⟨S4x1x16, .f32⟩ : BufTy).Contents (Elt F)),
    unary main_v6188 main_v6192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6191 main_v6193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6192 main_v6193 main_v6194 (mulf : (⟨S4x256x16, .f32⟩ : BufTy).Contents (Elt F) → (⟨S4x256x16, .f32⟩ : BufTy).Contents (Elt F) → (⟨S4x256x16, .f32⟩ : BufTy).Contents (Elt F)),
    binary main_v6185 main_v6194 main_v6195 (addf : (⟨S4x256x16, .f32⟩ : BufTy).Contents (Elt F) → (⟨S4x256x16, .f32⟩ : BufTy).Contents (Elt F) → (⟨S4x256x16, .f32⟩ : BufTy).Contents (Elt F)),
    unary main_arg3 main_v6196 ((extractStridedSlice S4x1x16 ![0, 309, 0] · slices_S4x512x16_S4x1x16_0_309_0) : (⟨S4x512x16, .f32⟩ : BufTy).Contents (Elt F) → (⟨S4x1x16, .f32⟩ : BufTy).Contents (Elt F)),
    reshape main_v6196 main_v6197 rfl shapeCasts_S4x1x16_S4x16,
    unary main_v6197 main_v6198 (broadcastInDim S4x1x16 ![0, 2] bcast_S4x16_S4x1x16_0_2 : (⟨S4x16, .f32⟩ : BufTy).Contents (Elt F) → (⟨S4x1x16, .f32⟩ : BufTy).Contents (Elt F)),
    unary main_v6198 main_v6199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6195 main_v6199 main_v6200 (mulf : (⟨S4x256x16, .f32⟩ : BufTy).Contents (Elt F) → (⟨S4x256x16, .f32⟩ : BufTy).Contents (Elt F) → (⟨S4x256x16, .f32⟩ : BufTy).Contents (Elt F)),
    nullary main_cst_618 (constant S_ .f32 0x00000000#32),
    binary main_v6200 main_cst_618 main_v6201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_619 (constantI S_ 32 309#32),
    unary main_c_619 main_v6202 (broadcastInDim S1 ![] bcast_S_S1 : (⟨S_, .i32⟩ : BufTy).Contents (Elt F) → (⟨S1, .i32⟩ : BufTy).Contents (Elt F)),
    ternary main_v6183 main_v6202 main_v6201 main_v6203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps309_ok : (stepOps309 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step309_val (V : Valuation τ sig (Elt Ideal)) :
    after (stepOps309 (F := Ideal)) V (no_index (Proc.devRef .tc main_v6195)) = stepH 309 (by decide) (V (Proc.devRef .tc main_arg0)) (V (Proc.devRef .tc main_v3)) (V (Proc.devRef .tc main_arg2)) (V (Proc.devRef .tc main_v6175))
    ∧ after (stepOps309 (F := Ideal)) V (no_index (Proc.devRef .tc main_v6203)) = stepY 309 (by decide) (V (Proc.devRef .tc main_arg3)) (stepH 309 (by decide) (V (Proc.devRef .tc main_arg0)) (V (Proc.devRef .tc main_v3)) (V (Proc.devRef .tc main_arg2)) (V (Proc.devRef .tc main_v6175))) (V (Proc.devRef .tc main_v6183)) := by
  simp only [stepOps309]
  after_results_simp
  first | exact ⟨rfl, rfl⟩ | fail "value"
/-- Step 310 of the loop: operations 6827 … 6848 of the program. -/
abbrev stepOps310 : List (HloOp τ sig (Elt F)) :=
  [ unary main_v3 main_v6204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6195 main_v6204 main_v6205 (mulf : (⟨S4x256x16, .f32⟩ : BufTy).Contents (Elt F) → (⟨S4x256x16, .f32⟩ : BufTy).Contents (Elt F) → (⟨S4x256x16, .f32⟩ : BufTy).Contents (Elt F)),
    unary main_arg0 main_v6206 ((extractStridedSlice S4x1x256 ![0, 310, 0] · slices_S4x512x256_S4x1x256_0_310_0) : (⟨S4x512x256, .f32⟩ : BufTy).Contents (Elt F) → (⟨S4x1x256, .f32⟩ : BufTy).Contents (Elt F)),
    reshape main_v6206 main_v6207 rfl shapeCasts_S4x1x256_S4x256,
    unary main_v6207 main_v6208 (broadcastInDim S4x256x1 ![0, 1] bcast_S4x256_S4x256x1_0_1 : (⟨S4x256, .f32⟩ : BufTy).Contents (Elt F) → (⟨S4x256x1, .f32⟩ : BufTy).Contents (Elt F)),
    unary main_arg2 main_v6209 ((extractStridedSlice S4x1x16 ![0, 310, 0] · slices_S4x512x16_S4x1x16_0_310_0) : (⟨S4x512x16, .f32⟩ : BufTy).Contents (Elt F) → (⟨S4x1x16, .f32⟩ : BufTy).Contents (Elt F)),
    reshape main_v6209 main_v6210 rfl shapeCasts_S4x1x16_S4x16,
    unary main_v6210 main_v6211 (broadcastInDim S4x1x16 ![0, 2] bcast_S4x16_S4x1x16_0_2 : (⟨S4x16, .f32⟩ : BufTy).Contents (Elt F) → (⟨S4x1x16, .f32⟩ : BufTy).Contents (Elt F)),
    unary main_v6208 main_v6212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6211 main_v6213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6212 main_v6213 main_v6214 (mulf : (⟨S4x256x16, .f32⟩ : BufTy).Contents (Elt F) → (⟨S4x256x16, .f32⟩ : BufTy).Contents (Elt F) → (⟨S4x256x16, .f32⟩ : BufTy).Contents (Elt F)),
    binary main_v6205 main_v6214 main_v6215 (addf : (⟨S4x256x16, .f32⟩ : BufTy).Contents (Elt F) → (⟨S4x256x16, .f32⟩ : BufTy).Contents (Elt F) → (⟨S4x256x16, .f32⟩ : BufTy).Contents (Elt F)),
    unary main_arg3 main_v6216 ((extractStridedSlice S4x1x16 ![0, 310, 0] · slices_S4x512x16_S4x1x16_0_310_0) : (⟨S4x512x16, .f32⟩ : BufTy).Contents (Elt F) → (⟨S4x1x16, .f32⟩ : BufTy).Contents (Elt F)),
    reshape main_v6216 main_v6217 rfl shapeCasts_S4x1x16_S4x16,
    unary main_v6217 main_v6218 (broadcastInDim S4x1x16 ![0, 2] bcast_S4x16_S4x1x16_0_2 : (⟨S4x16, .f32⟩ : BufTy).Contents (Elt F) → (⟨S4x1x16, .f32⟩ : BufTy).Contents (Elt F)),
    unary main_v6218 main_v6219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6215 main_v6219 main_v6220 (mulf : (⟨S4x256x16, .f32⟩ : BufTy).Contents (Elt F) → (⟨S4x256x16, .f32⟩ : BufTy).Contents (Elt F) → (⟨S4x256x16, .f32⟩ : BufTy).Contents (Elt F)),
    nullary main_cst_620 (constant S_ .f32 0x00000000#32),
    binary main_v6220 main_cst_620 main_v6221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_621 (constantI S_ 32 310#32),
    unary main_c_621 main_v6222 (broadcastInDim S1 ![] bcast_S_S1 : (⟨S_, .i32⟩ : BufTy).Contents (Elt F) → (⟨S1, .i32⟩ : BufTy).Contents (Elt F)),
    ternary main_v6203 main_v6222 main_v6221 main_v6223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps310_ok : (stepOps310 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step310_val (V : Valuation τ sig (Elt Ideal)) :
    after (stepOps310 (F := Ideal)) V (no_index (Proc.devRef .tc main_v6215)) = stepH 310 (by decide) (V (Proc.devRef .tc main_arg0)) (V (Proc.devRef .tc main_v3)) (V (Proc.devRef .tc main_arg2)) (V (Proc.devRef .tc main_v6195))
    ∧ after (stepOps310 (F := Ideal)) V (no_index (Proc.devRef .tc main_v6223)) = stepY 310 (by decide) (V (Proc.devRef .tc main_arg3)) (stepH 310 (by decide) (V (Proc.devRef .tc main_arg0)) (V (Proc.devRef .tc main_v3)) (V (Proc.devRef .tc main_arg2)) (V (Proc.devRef .tc main_v6195))) (V (Proc.devRef .tc main_v6203)) := by
  simp only [stepOps310]
  after_results_simp
  first | exact ⟨rfl, rfl⟩ | fail "value"
/-- Step 311 of the loop: operations 6849 … 6870 of the program. -/
abbrev stepOps311 : List (HloOp τ sig (Elt F)) :=
  [ unary main_v3 main_v6224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6215 main_v6224 main_v6225 (mulf : (⟨S4x256x16, .f32⟩ : BufTy).Contents (Elt F) → (⟨S4x256x16, .f32⟩ : BufTy).Contents (Elt F) → (⟨S4x256x16, .f32⟩ : BufTy).Contents (Elt F)),
    unary main_arg0 main_v6226 ((extractStridedSlice S4x1x256 ![0, 311, 0] · slices_S4x512x256_S4x1x256_0_311_0) : (⟨S4x512x256, .f32⟩ : BufTy).Contents (Elt F) → (⟨S4x1x256, .f32⟩ : BufTy).Contents (Elt F)),
    reshape main_v6226 main_v6227 rfl shapeCasts_S4x1x256_S4x256,
    unary main_v6227 main_v6228 (broadcastInDim S4x256x1 ![0, 1] bcast_S4x256_S4x256x1_0_1 : (⟨S4x256, .f32⟩ : BufTy).Contents (Elt F) → (⟨S4x256x1, .f32⟩ : BufTy).Contents (Elt F)),
    unary main_arg2 main_v6229 ((extractStridedSlice S4x1x16 ![0, 311, 0] · slices_S4x512x16_S4x1x16_0_311_0) : (⟨S4x512x16, .f32⟩ : BufTy).Contents (Elt F) → (⟨S4x1x16, .f32⟩ : BufTy).Contents (Elt F)),
    reshape main_v6229 main_v6230 rfl shapeCasts_S4x1x16_S4x16,
    unary main_v6230 main_v6231 (broadcastInDim S4x1x16 ![0, 2] bcast_S4x16_S4x1x16_0_2 : (⟨S4x16, .f32⟩ : BufTy).Contents (Elt F) → (⟨S4x1x16, .f32⟩ : BufTy).Contents (Elt F)),
    unary main_v6228 main_v6232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6231 main_v6233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6232 main_v6233 main_v6234 (mulf : (⟨S4x256x16, .f32⟩ : BufTy).Contents (Elt F) → (⟨S4x256x16, .f32⟩ : BufTy).Contents (Elt F) → (⟨S4x256x16, .f32⟩ : BufTy).Contents (Elt F)),
    binary main_v6225 main_v6234 main_v6235 (addf : (⟨S4x256x16, .f32⟩ : BufTy).Contents (Elt F) → (⟨S4x256x16, .f32⟩ : BufTy).Contents (Elt F) → (⟨S4x256x16, .f32⟩ : BufTy).Contents (Elt F)),
    unary main_arg3 main_v6236 ((extractStridedSlice S4x1x16 ![0, 311, 0] · slices_S4x512x16_S4x1x16_0_311_0) : (⟨S4x512x16, .f32⟩ : BufTy).Contents (Elt F) → (⟨S4x1x16, .f32⟩ : BufTy).Contents (Elt F)),
    reshape main_v6236 main_v6237 rfl shapeCasts_S4x1x16_S4x16,
    unary main_v6237 main_v6238 (broadcastInDim S4x1x16 ![0, 2] bcast_S4x16_S4x1x16_0_2 : (⟨S4x16, .f32⟩ : BufTy).Contents (Elt F) → (⟨S4x1x16, .f32⟩ : BufTy).Contents (Elt F)),
    unary main_v6238 main_v6239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6235 main_v6239 main_v6240 (mulf : (⟨S4x256x16, .f32⟩ : BufTy).Contents (Elt F) → (⟨S4x256x16, .f32⟩ : BufTy).Contents (Elt F) → (⟨S4x256x16, .f32⟩ : BufTy).Contents (Elt F)),
    nullary main_cst_622 (constant S_ .f32 0x00000000#32),
    binary main_v6240 main_cst_622 main_v6241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_623 (constantI S_ 32 311#32),
    unary main_c_623 main_v6242 (broadcastInDim S1 ![] bcast_S_S1 : (⟨S_, .i32⟩ : BufTy).Contents (Elt F) → (⟨S1, .i32⟩ : BufTy).Contents (Elt F)),
    ternary main_v6223 main_v6242 main_v6241 main_v6243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps311_ok : (stepOps311 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step311_val (V : Valuation τ sig (Elt Ideal)) :
    after (stepOps311 (F := Ideal)) V (no_index (Proc.devRef .tc main_v6235)) = stepH 311 (by decide) (V (Proc.devRef .tc main_arg0)) (V (Proc.devRef .tc main_v3)) (V (Proc.devRef .tc main_arg2)) (V (Proc.devRef .tc main_v6215))
    ∧ after (stepOps311 (F := Ideal)) V (no_index (Proc.devRef .tc main_v6243)) = stepY 311 (by decide) (V (Proc.devRef .tc main_arg3)) (stepH 311 (by decide) (V (Proc.devRef .tc main_arg0)) (V (Proc.devRef .tc main_v3)) (V (Proc.devRef .tc main_arg2)) (V (Proc.devRef .tc main_v6215))) (V (Proc.devRef .tc main_v6223)) := by
  simp only [stepOps311]
  after_results_simp
  first | exact ⟨rfl, rfl⟩ | fail "value"
/-- Step 312 of the loop: operations 6871 … 6892 of the program. -/
abbrev stepOps312 : List (HloOp τ sig (Elt F)) :=
  [ unary main_v3 main_v6244 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6235 main_v6244 main_v6245 (mulf : (⟨S4x256x16, .f32⟩ : BufTy).Contents (Elt F) → (⟨S4x256x16, .f32⟩ : BufTy).Contents (Elt F) → (⟨S4x256x16, .f32⟩ : BufTy).Contents (Elt F)),
    unary main_arg0 main_v6246 ((extractStridedSlice S4x1x256 ![0, 312, 0] · slices_S4x512x256_S4x1x256_0_312_0) : (⟨S4x512x256, .f32⟩ : BufTy).Contents (Elt F) → (⟨S4x1x256, .f32⟩ : BufTy).Contents (Elt F)),
    reshape main_v6246 main_v6247 rfl shapeCasts_S4x1x256_S4x256,
    unary main_v6247 main_v6248 (broadcastInDim S4x256x1 ![0, 1] bcast_S4x256_S4x256x1_0_1 : (⟨S4x256, .f32⟩ : BufTy).Contents (Elt F) → (⟨S4x256x1, .f32⟩ : BufTy).Contents (Elt F)),
    unary main_arg2 main_v6249 ((extractStridedSlice S4x1x16 ![0, 312, 0] · slices_S4x512x16_S4x1x16_0_312_0) : (⟨S4x512x16, .f32⟩ : BufTy).Contents (Elt F) → (⟨S4x1x16, .f32⟩ : BufTy).Contents (Elt F)),
    reshape main_v6249 main_v6250 rfl shapeCasts_S4x1x16_S4x16,
    unary main_v6250 main_v6251 (broadcastInDim S4x1x16 ![0, 2] bcast_S4x16_S4x1x16_0_2 : (⟨S4x16, .f32⟩ : BufTy).Contents (Elt F) → (⟨S4x1x16, .f32⟩ : BufTy).Contents (Elt F)),
    unary main_v6248 main_v6252 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6251 main_v6253 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6252 main_v6253 main_v6254 (mulf : (⟨S4x256x16, .f32⟩ : BufTy).Contents (Elt F) → (⟨S4x256x16, .f32⟩ : BufTy).Contents (Elt F) → (⟨S4x256x16, .f32⟩ : BufTy).Contents (Elt F)),
    binary main_v6245 main_v6254 main_v6255 (addf : (⟨S4x256x16, .f32⟩ : BufTy).Contents (Elt F) → (⟨S4x256x16, .f32⟩ : BufTy).Contents (Elt F) → (⟨S4x256x16, .f32⟩ : BufTy).Contents (Elt F)),
    unary main_arg3 main_v6256 ((extractStridedSlice S4x1x16 ![0, 312, 0] · slices_S4x512x16_S4x1x16_0_312_0) : (⟨S4x512x16, .f32⟩ : BufTy).Contents (Elt F) → (⟨S4x1x16, .f32⟩ : BufTy).Contents (Elt F)),
    reshape main_v6256 main_v6257 rfl shapeCasts_S4x1x16_S4x16,
    unary main_v6257 main_v6258 (broadcastInDim S4x1x16 ![0, 2] bcast_S4x16_S4x1x16_0_2 : (⟨S4x16, .f32⟩ : BufTy).Contents (Elt F) → (⟨S4x1x16, .f32⟩ : BufTy).Contents (Elt F)),
    unary main_v6258 main_v6259 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6255 main_v6259 main_v6260 (mulf : (⟨S4x256x16, .f32⟩ : BufTy).Contents (Elt F) → (⟨S4x256x16, .f32⟩ : BufTy).Contents (Elt F) → (⟨S4x256x16, .f32⟩ : BufTy).Contents (Elt F)),
    nullary main_cst_624 (constant S_ .f32 0x00000000#32),
    binary main_v6260 main_cst_624 main_v6261 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_625 (constantI S_ 32 312#32),
    unary main_c_625 main_v6262 (broadcastInDim S1 ![] bcast_S_S1 : (⟨S_, .i32⟩ : BufTy).Contents (Elt F) → (⟨S1, .i32⟩ : BufTy).Contents (Elt F)),
    ternary main_v6243 main_v6262 main_v6261 main_v6263 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps312_ok : (stepOps312 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step312_val (V : Valuation τ sig (Elt Ideal)) :
    after (stepOps312 (F := Ideal)) V (no_index (Proc.devRef .tc main_v6255)) = stepH 312 (by decide) (V (Proc.devRef .tc main_arg0)) (V (Proc.devRef .tc main_v3)) (V (Proc.devRef .tc main_arg2)) (V (Proc.devRef .tc main_v6235))
    ∧ after (stepOps312 (F := Ideal)) V (no_index (Proc.devRef .tc main_v6263)) = stepY 312 (by decide) (V (Proc.devRef .tc main_arg3)) (stepH 312 (by decide) (V (Proc.devRef .tc main_arg0)) (V (Proc.devRef .tc main_v3)) (V (Proc.devRef .tc main_arg2)) (V (Proc.devRef .tc main_v6235))) (V (Proc.devRef .tc main_v6243)) := by
  simp only [stepOps312]
  after_results_simp
  first | exact ⟨rfl, rfl⟩ | fail "value"
/-- Step 313 of the loop: operations 6893 … 6914 of the program. -/
abbrev stepOps313 : List (HloOp τ sig (Elt F)) :=
  [ unary main_v3 main_v6264 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6255 main_v6264 main_v6265 (mulf : (⟨S4x256x16, .f32⟩ : BufTy).Contents (Elt F) → (⟨S4x256x16, .f32⟩ : BufTy).Contents (Elt F) → (⟨S4x256x16, .f32⟩ : BufTy).Contents (Elt F)),
    unary main_arg0 main_v6266 ((extractStridedSlice S4x1x256 ![0, 313, 0] · slices_S4x512x256_S4x1x256_0_313_0) : (⟨S4x512x256, .f32⟩ : BufTy).Contents (Elt F) → (⟨S4x1x256, .f32⟩ : BufTy).Contents (Elt F)),
    reshape main_v6266 main_v6267 rfl shapeCasts_S4x1x256_S4x256,
    unary main_v6267 main_v6268 (broadcastInDim S4x256x1 ![0, 1] bcast_S4x256_S4x256x1_0_1 : (⟨S4x256, .f32⟩ : BufTy).Contents (Elt F) → (⟨S4x256x1, .f32⟩ : BufTy).Contents (Elt F)),
    unary main_arg2 main_v6269 ((extractStridedSlice S4x1x16 ![0, 313, 0] · slices_S4x512x16_S4x1x16_0_313_0) : (⟨S4x512x16, .f32⟩ : BufTy).Contents (Elt F) → (⟨S4x1x16, .f32⟩ : BufTy).Contents (Elt F)),
    reshape main_v6269 main_v6270 rfl shapeCasts_S4x1x16_S4x16,
    unary main_v6270 main_v6271 (broadcastInDim S4x1x16 ![0, 2] bcast_S4x16_S4x1x16_0_2 : (⟨S4x16, .f32⟩ : BufTy).Contents (Elt F) → (⟨S4x1x16, .f32⟩ : BufTy).Contents (Elt F)),
    unary main_v6268 main_v6272 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6271 main_v6273 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6272 main_v6273 main_v6274 (mulf : (⟨S4x256x16, .f32⟩ : BufTy).Contents (Elt F) → (⟨S4x256x16, .f32⟩ : BufTy).Contents (Elt F) → (⟨S4x256x16, .f32⟩ : BufTy).Contents (Elt F)),
    binary main_v6265 main_v6274 main_v6275 (addf : (⟨S4x256x16, .f32⟩ : BufTy).Contents (Elt F) → (⟨S4x256x16, .f32⟩ : BufTy).Contents (Elt F) → (⟨S4x256x16, .f32⟩ : BufTy).Contents (Elt F)),
    unary main_arg3 main_v6276 ((extractStridedSlice S4x1x16 ![0, 313, 0] · slices_S4x512x16_S4x1x16_0_313_0) : (⟨S4x512x16, .f32⟩ : BufTy).Contents (Elt F) → (⟨S4x1x16, .f32⟩ : BufTy).Contents (Elt F)),
    reshape main_v6276 main_v6277 rfl shapeCasts_S4x1x16_S4x16,
    unary main_v6277 main_v6278 (broadcastInDim S4x1x16 ![0, 2] bcast_S4x16_S4x1x16_0_2 : (⟨S4x16, .f32⟩ : BufTy).Contents (Elt F) → (⟨S4x1x16, .f32⟩ : BufTy).Contents (Elt F)),
    unary main_v6278 main_v6279 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6275 main_v6279 main_v6280 (mulf : (⟨S4x256x16, .f32⟩ : BufTy).Contents (Elt F) → (⟨S4x256x16, .f32⟩ : BufTy).Contents (Elt F) → (⟨S4x256x16, .f32⟩ : BufTy).Contents (Elt F)),
    nullary main_cst_626 (constant S_ .f32 0x00000000#32),
    binary main_v6280 main_cst_626 main_v6281 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_627 (constantI S_ 32 313#32),
    unary main_c_627 main_v6282 (broadcastInDim S1 ![] bcast_S_S1 : (⟨S_, .i32⟩ : BufTy).Contents (Elt F) → (⟨S1, .i32⟩ : BufTy).Contents (Elt F)),
    ternary main_v6263 main_v6282 main_v6281 main_v6283 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps313_ok : (stepOps313 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step313_val (V : Valuation τ sig (Elt Ideal)) :
    after (stepOps313 (F := Ideal)) V (no_index (Proc.devRef .tc main_v6275)) = stepH 313 (by decide) (V (Proc.devRef .tc main_arg0)) (V (Proc.devRef .tc main_v3)) (V (Proc.devRef .tc main_arg2)) (V (Proc.devRef .tc main_v6255))
    ∧ after (stepOps313 (F := Ideal)) V (no_index (Proc.devRef .tc main_v6283)) = stepY 313 (by decide) (V (Proc.devRef .tc main_arg3)) (stepH 313 (by decide) (V (Proc.devRef .tc main_arg0)) (V (Proc.devRef .tc main_v3)) (V (Proc.devRef .tc main_arg2)) (V (Proc.devRef .tc main_v6255))) (V (Proc.devRef .tc main_v6263)) := by
  simp only [stepOps313]
  after_results_simp
  first | exact ⟨rfl, rfl⟩ | fail "value"
/-- Step 314 of the loop: operations 6915 … 6936 of the program. -/
abbrev stepOps314 : List (HloOp τ sig (Elt F)) :=
  [ unary main_v3 main_v6284 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6275 main_v6284 main_v6285 (mulf : (⟨S4x256x16, .f32⟩ : BufTy).Contents (Elt F) → (⟨S4x256x16, .f32⟩ : BufTy).Contents (Elt F) → (⟨S4x256x16, .f32⟩ : BufTy).Contents (Elt F)),
    unary main_arg0 main_v6286 ((extractStridedSlice S4x1x256 ![0, 314, 0] · slices_S4x512x256_S4x1x256_0_314_0) : (⟨S4x512x256, .f32⟩ : BufTy).Contents (Elt F) → (⟨S4x1x256, .f32⟩ : BufTy).Contents (Elt F)),
    reshape main_v6286 main_v6287 rfl shapeCasts_S4x1x256_S4x256,
    unary main_v6287 main_v6288 (broadcastInDim S4x256x1 ![0, 1] bcast_S4x256_S4x256x1_0_1 : (⟨S4x256, .f32⟩ : BufTy).Contents (Elt F) → (⟨S4x256x1, .f32⟩ : BufTy).Contents (Elt F)),
    unary main_arg2 main_v6289 ((extractStridedSlice S4x1x16 ![0, 314, 0] · slices_S4x512x16_S4x1x16_0_314_0) : (⟨S4x512x16, .f32⟩ : BufTy).Contents (Elt F) → (⟨S4x1x16, .f32⟩ : BufTy).Contents (Elt F)),
    reshape main_v6289 main_v6290 rfl shapeCasts_S4x1x16_S4x16,
    unary main_v6290 main_v6291 (broadcastInDim S4x1x16 ![0, 2] bcast_S4x16_S4x1x16_0_2 : (⟨S4x16, .f32⟩ : BufTy).Contents (Elt F) → (⟨S4x1x16, .f32⟩ : BufTy).Contents (Elt F)),
    unary main_v6288 main_v6292 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6291 main_v6293 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6292 main_v6293 main_v6294 (mulf : (⟨S4x256x16, .f32⟩ : BufTy).Contents (Elt F) → (⟨S4x256x16, .f32⟩ : BufTy).Contents (Elt F) → (⟨S4x256x16, .f32⟩ : BufTy).Contents (Elt F)),
    binary main_v6285 main_v6294 main_v6295 (addf : (⟨S4x256x16, .f32⟩ : BufTy).Contents (Elt F) → (⟨S4x256x16, .f32⟩ : BufTy).Contents (Elt F) → (⟨S4x256x16, .f32⟩ : BufTy).Contents (Elt F)),
    unary main_arg3 main_v6296 ((extractStridedSlice S4x1x16 ![0, 314, 0] · slices_S4x512x16_S4x1x16_0_314_0) : (⟨S4x512x16, .f32⟩ : BufTy).Contents (Elt F) → (⟨S4x1x16, .f32⟩ : BufTy).Contents (Elt F)),
    reshape main_v6296 main_v6297 rfl shapeCasts_S4x1x16_S4x16,
    unary main_v6297 main_v6298 (broadcastInDim S4x1x16 ![0, 2] bcast_S4x16_S4x1x16_0_2 : (⟨S4x16, .f32⟩ : BufTy).Contents (Elt F) → (⟨S4x1x16, .f32⟩ : BufTy).Contents (Elt F)),
    unary main_v6298 main_v6299 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6295 main_v6299 main_v6300 (mulf : (⟨S4x256x16, .f32⟩ : BufTy).Contents (Elt F) → (⟨S4x256x16, .f32⟩ : BufTy).Contents (Elt F) → (⟨S4x256x16, .f32⟩ : BufTy).Contents (Elt F)),
    nullary main_cst_628 (constant S_ .f32 0x00000000#32),
    binary main_v6300 main_cst_628 main_v6301 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_629 (constantI S_ 32 314#32),
    unary main_c_629 main_v6302 (broadcastInDim S1 ![] bcast_S_S1 : (⟨S_, .i32⟩ : BufTy).Contents (Elt F) → (⟨S1, .i32⟩ : BufTy).Contents (Elt F)),
    ternary main_v6283 main_v6302 main_v6301 main_v6303 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps314_ok : (stepOps314 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step314_val (V : Valuation τ sig (Elt Ideal)) :
    after (stepOps314 (F := Ideal)) V (no_index (Proc.devRef .tc main_v6295)) = stepH 314 (by decide) (V (Proc.devRef .tc main_arg0)) (V (Proc.devRef .tc main_v3)) (V (Proc.devRef .tc main_arg2)) (V (Proc.devRef .tc main_v6275))
    ∧ after (stepOps314 (F := Ideal)) V (no_index (Proc.devRef .tc main_v6303)) = stepY 314 (by decide) (V (Proc.devRef .tc main_arg3)) (stepH 314 (by decide) (V (Proc.devRef .tc main_arg0)) (V (Proc.devRef .tc main_v3)) (V (Proc.devRef .tc main_arg2)) (V (Proc.devRef .tc main_v6275))) (V (Proc.devRef .tc main_v6283)) := by
  simp only [stepOps314]
  after_results_simp
  first | exact ⟨rfl, rfl⟩ | fail "value"
/-- Step 315 of the loop: operations 6937 … 6958 of the program. -/
abbrev stepOps315 : List (HloOp τ sig (Elt F)) :=
  [ unary main_v3 main_v6304 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6295 main_v6304 main_v6305 (mulf : (⟨S4x256x16, .f32⟩ : BufTy).Contents (Elt F) → (⟨S4x256x16, .f32⟩ : BufTy).Contents (Elt F) → (⟨S4x256x16, .f32⟩ : BufTy).Contents (Elt F)),
    unary main_arg0 main_v6306 ((extractStridedSlice S4x1x256 ![0, 315, 0] · slices_S4x512x256_S4x1x256_0_315_0) : (⟨S4x512x256, .f32⟩ : BufTy).Contents (Elt F) → (⟨S4x1x256, .f32⟩ : BufTy).Contents (Elt F)),
    reshape main_v6306 main_v6307 rfl shapeCasts_S4x1x256_S4x256,
    unary main_v6307 main_v6308 (broadcastInDim S4x256x1 ![0, 1] bcast_S4x256_S4x256x1_0_1 : (⟨S4x256, .f32⟩ : BufTy).Contents (Elt F) → (⟨S4x256x1, .f32⟩ : BufTy).Contents (Elt F)),
    unary main_arg2 main_v6309 ((extractStridedSlice S4x1x16 ![0, 315, 0] · slices_S4x512x16_S4x1x16_0_315_0) : (⟨S4x512x16, .f32⟩ : BufTy).Contents (Elt F) → (⟨S4x1x16, .f32⟩ : BufTy).Contents (Elt F)),
    reshape main_v6309 main_v6310 rfl shapeCasts_S4x1x16_S4x16,
    unary main_v6310 main_v6311 (broadcastInDim S4x1x16 ![0, 2] bcast_S4x16_S4x1x16_0_2 : (⟨S4x16, .f32⟩ : BufTy).Contents (Elt F) → (⟨S4x1x16, .f32⟩ : BufTy).Contents (Elt F)),
    unary main_v6308 main_v6312 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6311 main_v6313 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6312 main_v6313 main_v6314 (mulf : (⟨S4x256x16, .f32⟩ : BufTy).Contents (Elt F) → (⟨S4x256x16, .f32⟩ : BufTy).Contents (Elt F) → (⟨S4x256x16, .f32⟩ : BufTy).Contents (Elt F)),
    binary main_v6305 main_v6314 main_v6315 (addf : (⟨S4x256x16, .f32⟩ : BufTy).Contents (Elt F) → (⟨S4x256x16, .f32⟩ : BufTy).Contents (Elt F) → (⟨S4x256x16, .f32⟩ : BufTy).Contents (Elt F)),
    unary main_arg3 main_v6316 ((extractStridedSlice S4x1x16 ![0, 315, 0] · slices_S4x512x16_S4x1x16_0_315_0) : (⟨S4x512x16, .f32⟩ : BufTy).Contents (Elt F) → (⟨S4x1x16, .f32⟩ : BufTy).Contents (Elt F)),
    reshape main_v6316 main_v6317 rfl shapeCasts_S4x1x16_S4x16,
    unary main_v6317 main_v6318 (broadcastInDim S4x1x16 ![0, 2] bcast_S4x16_S4x1x16_0_2 : (⟨S4x16, .f32⟩ : BufTy).Contents (Elt F) → (⟨S4x1x16, .f32⟩ : BufTy).Contents (Elt F)),
    unary main_v6318 main_v6319 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6315 main_v6319 main_v6320 (mulf : (⟨S4x256x16, .f32⟩ : BufTy).Contents (Elt F) → (⟨S4x256x16, .f32⟩ : BufTy).Contents (Elt F) → (⟨S4x256x16, .f32⟩ : BufTy).Contents (Elt F)),
    nullary main_cst_630 (constant S_ .f32 0x00000000#32),
    binary main_v6320 main_cst_630 main_v6321 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_631 (constantI S_ 32 315#32),
    unary main_c_631 main_v6322 (broadcastInDim S1 ![] bcast_S_S1 : (⟨S_, .i32⟩ : BufTy).Contents (Elt F) → (⟨S1, .i32⟩ : BufTy).Contents (Elt F)),
    ternary main_v6303 main_v6322 main_v6321 main_v6323 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps315_ok : (stepOps315 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step315_val (V : Valuation τ sig (Elt Ideal)) :
    after (stepOps315 (F := Ideal)) V (no_index (Proc.devRef .tc main_v6315)) = stepH 315 (by decide) (V (Proc.devRef .tc main_arg0)) (V (Proc.devRef .tc main_v3)) (V (Proc.devRef .tc main_arg2)) (V (Proc.devRef .tc main_v6295))
    ∧ after (stepOps315 (F := Ideal)) V (no_index (Proc.devRef .tc main_v6323)) = stepY 315 (by decide) (V (Proc.devRef .tc main_arg3)) (stepH 315 (by decide) (V (Proc.devRef .tc main_arg0)) (V (Proc.devRef .tc main_v3)) (V (Proc.devRef .tc main_arg2)) (V (Proc.devRef .tc main_v6295))) (V (Proc.devRef .tc main_v6303)) := by
  simp only [stepOps315]
  after_results_simp
  first | exact ⟨rfl, rfl⟩ | fail "value"
/-- Step 316 of the loop: operations 6959 … 6980 of the program. -/
abbrev stepOps316 : List (HloOp τ sig (Elt F)) :=
  [ unary main_v3 main_v6324 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6315 main_v6324 main_v6325 (mulf : (⟨S4x256x16, .f32⟩ : BufTy).Contents (Elt F) → (⟨S4x256x16, .f32⟩ : BufTy).Contents (Elt F) → (⟨S4x256x16, .f32⟩ : BufTy).Contents (Elt F)),
    unary main_arg0 main_v6326 ((extractStridedSlice S4x1x256 ![0, 316, 0] · slices_S4x512x256_S4x1x256_0_316_0) : (⟨S4x512x256, .f32⟩ : BufTy).Contents (Elt F) → (⟨S4x1x256, .f32⟩ : BufTy).Contents (Elt F)),
    reshape main_v6326 main_v6327 rfl shapeCasts_S4x1x256_S4x256,
    unary main_v6327 main_v6328 (broadcastInDim S4x256x1 ![0, 1] bcast_S4x256_S4x256x1_0_1 : (⟨S4x256, .f32⟩ : BufTy).Contents (Elt F) → (⟨S4x256x1, .f32⟩ : BufTy).Contents (Elt F)),
    unary main_arg2 main_v6329 ((extractStridedSlice S4x1x16 ![0, 316, 0] · slices_S4x512x16_S4x1x16_0_316_0) : (⟨S4x512x16, .f32⟩ : BufTy).Contents (Elt F) → (⟨S4x1x16, .f32⟩ : BufTy).Contents (Elt F)),
    reshape main_v6329 main_v6330 rfl shapeCasts_S4x1x16_S4x16,
    unary main_v6330 main_v6331 (broadcastInDim S4x1x16 ![0, 2] bcast_S4x16_S4x1x16_0_2 : (⟨S4x16, .f32⟩ : BufTy).Contents (Elt F) → (⟨S4x1x16, .f32⟩ : BufTy).Contents (Elt F)),
    unary main_v6328 main_v6332 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6331 main_v6333 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6332 main_v6333 main_v6334 (mulf : (⟨S4x256x16, .f32⟩ : BufTy).Contents (Elt F) → (⟨S4x256x16, .f32⟩ : BufTy).Contents (Elt F) → (⟨S4x256x16, .f32⟩ : BufTy).Contents (Elt F)),
    binary main_v6325 main_v6334 main_v6335 (addf : (⟨S4x256x16, .f32⟩ : BufTy).Contents (Elt F) → (⟨S4x256x16, .f32⟩ : BufTy).Contents (Elt F) → (⟨S4x256x16, .f32⟩ : BufTy).Contents (Elt F)),
    unary main_arg3 main_v6336 ((extractStridedSlice S4x1x16 ![0, 316, 0] · slices_S4x512x16_S4x1x16_0_316_0) : (⟨S4x512x16, .f32⟩ : BufTy).Contents (Elt F) → (⟨S4x1x16, .f32⟩ : BufTy).Contents (Elt F)),
    reshape main_v6336 main_v6337 rfl shapeCasts_S4x1x16_S4x16,
    unary main_v6337 main_v6338 (broadcastInDim S4x1x16 ![0, 2] bcast_S4x16_S4x1x16_0_2 : (⟨S4x16, .f32⟩ : BufTy).Contents (Elt F) → (⟨S4x1x16, .f32⟩ : BufTy).Contents (Elt F)),
    unary main_v6338 main_v6339 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6335 main_v6339 main_v6340 (mulf : (⟨S4x256x16, .f32⟩ : BufTy).Contents (Elt F) → (⟨S4x256x16, .f32⟩ : BufTy).Contents (Elt F) → (⟨S4x256x16, .f32⟩ : BufTy).Contents (Elt F)),
    nullary main_cst_632 (constant S_ .f32 0x00000000#32),
    binary main_v6340 main_cst_632 main_v6341 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_633 (constantI S_ 32 316#32),
    unary main_c_633 main_v6342 (broadcastInDim S1 ![] bcast_S_S1 : (⟨S_, .i32⟩ : BufTy).Contents (Elt F) → (⟨S1, .i32⟩ : BufTy).Contents (Elt F)),
    ternary main_v6323 main_v6342 main_v6341 main_v6343 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps316_ok : (stepOps316 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step316_val (V : Valuation τ sig (Elt Ideal)) :
    after (stepOps316 (F := Ideal)) V (no_index (Proc.devRef .tc main_v6335)) = stepH 316 (by decide) (V (Proc.devRef .tc main_arg0)) (V (Proc.devRef .tc main_v3)) (V (Proc.devRef .tc main_arg2)) (V (Proc.devRef .tc main_v6315))
    ∧ after (stepOps316 (F := Ideal)) V (no_index (Proc.devRef .tc main_v6343)) = stepY 316 (by decide) (V (Proc.devRef .tc main_arg3)) (stepH 316 (by decide) (V (Proc.devRef .tc main_arg0)) (V (Proc.devRef .tc main_v3)) (V (Proc.devRef .tc main_arg2)) (V (Proc.devRef .tc main_v6315))) (V (Proc.devRef .tc main_v6323)) := by
  simp only [stepOps316]
  after_results_simp
  first | exact ⟨rfl, rfl⟩ | fail "value"
/-- Step 317 of the loop: operations 6981 … 7002 of the program. -/
abbrev stepOps317 : List (HloOp τ sig (Elt F)) :=
  [ unary main_v3 main_v6344 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6335 main_v6344 main_v6345 (mulf : (⟨S4x256x16, .f32⟩ : BufTy).Contents (Elt F) → (⟨S4x256x16, .f32⟩ : BufTy).Contents (Elt F) → (⟨S4x256x16, .f32⟩ : BufTy).Contents (Elt F)),
    unary main_arg0 main_v6346 ((extractStridedSlice S4x1x256 ![0, 317, 0] · slices_S4x512x256_S4x1x256_0_317_0) : (⟨S4x512x256, .f32⟩ : BufTy).Contents (Elt F) → (⟨S4x1x256, .f32⟩ : BufTy).Contents (Elt F)),
    reshape main_v6346 main_v6347 rfl shapeCasts_S4x1x256_S4x256,
    unary main_v6347 main_v6348 (broadcastInDim S4x256x1 ![0, 1] bcast_S4x256_S4x256x1_0_1 : (⟨S4x256, .f32⟩ : BufTy).Contents (Elt F) → (⟨S4x256x1, .f32⟩ : BufTy).Contents (Elt F)),
    unary main_arg2 main_v6349 ((extractStridedSlice S4x1x16 ![0, 317, 0] · slices_S4x512x16_S4x1x16_0_317_0) : (⟨S4x512x16, .f32⟩ : BufTy).Contents (Elt F) → (⟨S4x1x16, .f32⟩ : BufTy).Contents (Elt F)),
    reshape main_v6349 main_v6350 rfl shapeCasts_S4x1x16_S4x16,
    unary main_v6350 main_v6351 (broadcastInDim S4x1x16 ![0, 2] bcast_S4x16_S4x1x16_0_2 : (⟨S4x16, .f32⟩ : BufTy).Contents (Elt F) → (⟨S4x1x16, .f32⟩ : BufTy).Contents (Elt F)),
    unary main_v6348 main_v6352 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6351 main_v6353 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6352 main_v6353 main_v6354 (mulf : (⟨S4x256x16, .f32⟩ : BufTy).Contents (Elt F) → (⟨S4x256x16, .f32⟩ : BufTy).Contents (Elt F) → (⟨S4x256x16, .f32⟩ : BufTy).Contents (Elt F)),
    binary main_v6345 main_v6354 main_v6355 (addf : (⟨S4x256x16, .f32⟩ : BufTy).Contents (Elt F) → (⟨S4x256x16, .f32⟩ : BufTy).Contents (Elt F) → (⟨S4x256x16, .f32⟩ : BufTy).Contents (Elt F)),
    unary main_arg3 main_v6356 ((extractStridedSlice S4x1x16 ![0, 317, 0] · slices_S4x512x16_S4x1x16_0_317_0) : (⟨S4x512x16, .f32⟩ : BufTy).Contents (Elt F) → (⟨S4x1x16, .f32⟩ : BufTy).Contents (Elt F)),
    reshape main_v6356 main_v6357 rfl shapeCasts_S4x1x16_S4x16,
    unary main_v6357 main_v6358 (broadcastInDim S4x1x16 ![0, 2] bcast_S4x16_S4x1x16_0_2 : (⟨S4x16, .f32⟩ : BufTy).Contents (Elt F) → (⟨S4x1x16, .f32⟩ : BufTy).Contents (Elt F)),
    unary main_v6358 main_v6359 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6355 main_v6359 main_v6360 (mulf : (⟨S4x256x16, .f32⟩ : BufTy).Contents (Elt F) → (⟨S4x256x16, .f32⟩ : BufTy).Contents (Elt F) → (⟨S4x256x16, .f32⟩ : BufTy).Contents (Elt F)),
    nullary main_cst_634 (constant S_ .f32 0x00000000#32),
    binary main_v6360 main_cst_634 main_v6361 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_635 (constantI S_ 32 317#32),
    unary main_c_635 main_v6362 (broadcastInDim S1 ![] bcast_S_S1 : (⟨S_, .i32⟩ : BufTy).Contents (Elt F) → (⟨S1, .i32⟩ : BufTy).Contents (Elt F)),
    ternary main_v6343 main_v6362 main_v6361 main_v6363 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps317_ok : (stepOps317 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step317_val (V : Valuation τ sig (Elt Ideal)) :
    after (stepOps317 (F := Ideal)) V (no_index (Proc.devRef .tc main_v6355)) = stepH 317 (by decide) (V (Proc.devRef .tc main_arg0)) (V (Proc.devRef .tc main_v3)) (V (Proc.devRef .tc main_arg2)) (V (Proc.devRef .tc main_v6335))
    ∧ after (stepOps317 (F := Ideal)) V (no_index (Proc.devRef .tc main_v6363)) = stepY 317 (by decide) (V (Proc.devRef .tc main_arg3)) (stepH 317 (by decide) (V (Proc.devRef .tc main_arg0)) (V (Proc.devRef .tc main_v3)) (V (Proc.devRef .tc main_arg2)) (V (Proc.devRef .tc main_v6335))) (V (Proc.devRef .tc main_v6343)) := by
  simp only [stepOps317]
  after_results_simp
  first | exact ⟨rfl, rfl⟩ | fail "value"
/-- Step 318 of the loop: operations 7003 … 7024 of the program. -/
abbrev stepOps318 : List (HloOp τ sig (Elt F)) :=
  [ unary main_v3 main_v6364 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6355 main_v6364 main_v6365 (mulf : (⟨S4x256x16, .f32⟩ : BufTy).Contents (Elt F) → (⟨S4x256x16, .f32⟩ : BufTy).Contents (Elt F) → (⟨S4x256x16, .f32⟩ : BufTy).Contents (Elt F)),
    unary main_arg0 main_v6366 ((extractStridedSlice S4x1x256 ![0, 318, 0] · slices_S4x512x256_S4x1x256_0_318_0) : (⟨S4x512x256, .f32⟩ : BufTy).Contents (Elt F) → (⟨S4x1x256, .f32⟩ : BufTy).Contents (Elt F)),
    reshape main_v6366 main_v6367 rfl shapeCasts_S4x1x256_S4x256,
    unary main_v6367 main_v6368 (broadcastInDim S4x256x1 ![0, 1] bcast_S4x256_S4x256x1_0_1 : (⟨S4x256, .f32⟩ : BufTy).Contents (Elt F) → (⟨S4x256x1, .f32⟩ : BufTy).Contents (Elt F)),
    unary main_arg2 main_v6369 ((extractStridedSlice S4x1x16 ![0, 318, 0] · slices_S4x512x16_S4x1x16_0_318_0) : (⟨S4x512x16, .f32⟩ : BufTy).Contents (Elt F) → (⟨S4x1x16, .f32⟩ : BufTy).Contents (Elt F)),
    reshape main_v6369 main_v6370 rfl shapeCasts_S4x1x16_S4x16,
    unary main_v6370 main_v6371 (broadcastInDim S4x1x16 ![0, 2] bcast_S4x16_S4x1x16_0_2 : (⟨S4x16, .f32⟩ : BufTy).Contents (Elt F) → (⟨S4x1x16, .f32⟩ : BufTy).Contents (Elt F)),
    unary main_v6368 main_v6372 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6371 main_v6373 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6372 main_v6373 main_v6374 (mulf : (⟨S4x256x16, .f32⟩ : BufTy).Contents (Elt F) → (⟨S4x256x16, .f32⟩ : BufTy).Contents (Elt F) → (⟨S4x256x16, .f32⟩ : BufTy).Contents (Elt F)),
    binary main_v6365 main_v6374 main_v6375 (addf : (⟨S4x256x16, .f32⟩ : BufTy).Contents (Elt F) → (⟨S4x256x16, .f32⟩ : BufTy).Contents (Elt F) → (⟨S4x256x16, .f32⟩ : BufTy).Contents (Elt F)),
    unary main_arg3 main_v6376 ((extractStridedSlice S4x1x16 ![0, 318, 0] · slices_S4x512x16_S4x1x16_0_318_0) : (⟨S4x512x16, .f32⟩ : BufTy).Contents (Elt F) → (⟨S4x1x16, .f32⟩ : BufTy).Contents (Elt F)),
    reshape main_v6376 main_v6377 rfl shapeCasts_S4x1x16_S4x16,
    unary main_v6377 main_v6378 (broadcastInDim S4x1x16 ![0, 2] bcast_S4x16_S4x1x16_0_2 : (⟨S4x16, .f32⟩ : BufTy).Contents (Elt F) → (⟨S4x1x16, .f32⟩ : BufTy).Contents (Elt F)),
    unary main_v6378 main_v6379 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6375 main_v6379 main_v6380 (mulf : (⟨S4x256x16, .f32⟩ : BufTy).Contents (Elt F) → (⟨S4x256x16, .f32⟩ : BufTy).Contents (Elt F) → (⟨S4x256x16, .f32⟩ : BufTy).Contents (Elt F)),
    nullary main_cst_636 (constant S_ .f32 0x00000000#32),
    binary main_v6380 main_cst_636 main_v6381 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_637 (constantI S_ 32 318#32),
    unary main_c_637 main_v6382 (broadcastInDim S1 ![] bcast_S_S1 : (⟨S_, .i32⟩ : BufTy).Contents (Elt F) → (⟨S1, .i32⟩ : BufTy).Contents (Elt F)),
    ternary main_v6363 main_v6382 main_v6381 main_v6383 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps318_ok : (stepOps318 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step318_val (V : Valuation τ sig (Elt Ideal)) :
    after (stepOps318 (F := Ideal)) V (no_index (Proc.devRef .tc main_v6375)) = stepH 318 (by decide) (V (Proc.devRef .tc main_arg0)) (V (Proc.devRef .tc main_v3)) (V (Proc.devRef .tc main_arg2)) (V (Proc.devRef .tc main_v6355))
    ∧ after (stepOps318 (F := Ideal)) V (no_index (Proc.devRef .tc main_v6383)) = stepY 318 (by decide) (V (Proc.devRef .tc main_arg3)) (stepH 318 (by decide) (V (Proc.devRef .tc main_arg0)) (V (Proc.devRef .tc main_v3)) (V (Proc.devRef .tc main_arg2)) (V (Proc.devRef .tc main_v6355))) (V (Proc.devRef .tc main_v6363)) := by
  simp only [stepOps318]
  after_results_simp
  first | exact ⟨rfl, rfl⟩ | fail "value"
/-- Step 319 of the loop: operations 7025 … 7046 of the program. -/
abbrev stepOps319 : List (HloOp τ sig (Elt F)) :=
  [ unary main_v3 main_v6384 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6375 main_v6384 main_v6385 (mulf : (⟨S4x256x16, .f32⟩ : BufTy).Contents (Elt F) → (⟨S4x256x16, .f32⟩ : BufTy).Contents (Elt F) → (⟨S4x256x16, .f32⟩ : BufTy).Contents (Elt F)),
    unary main_arg0 main_v6386 ((extractStridedSlice S4x1x256 ![0, 319, 0] · slices_S4x512x256_S4x1x256_0_319_0) : (⟨S4x512x256, .f32⟩ : BufTy).Contents (Elt F) → (⟨S4x1x256, .f32⟩ : BufTy).Contents (Elt F)),
    reshape main_v6386 main_v6387 rfl shapeCasts_S4x1x256_S4x256,
    unary main_v6387 main_v6388 (broadcastInDim S4x256x1 ![0, 1] bcast_S4x256_S4x256x1_0_1 : (⟨S4x256, .f32⟩ : BufTy).Contents (Elt F) → (⟨S4x256x1, .f32⟩ : BufTy).Contents (Elt F)),
    unary main_arg2 main_v6389 ((extractStridedSlice S4x1x16 ![0, 319, 0] · slices_S4x512x16_S4x1x16_0_319_0) : (⟨S4x512x16, .f32⟩ : BufTy).Contents (Elt F) → (⟨S4x1x16, .f32⟩ : BufTy).Contents (Elt F)),
    reshape main_v6389 main_v6390 rfl shapeCasts_S4x1x16_S4x16,
    unary main_v6390 main_v6391 (broadcastInDim S4x1x16 ![0, 2] bcast_S4x16_S4x1x16_0_2 : (⟨S4x16, .f32⟩ : BufTy).Contents (Elt F) → (⟨S4x1x16, .f32⟩ : BufTy).Contents (Elt F)),
    unary main_v6388 main_v6392 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6391 main_v6393 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6392 main_v6393 main_v6394 (mulf : (⟨S4x256x16, .f32⟩ : BufTy).Contents (Elt F) → (⟨S4x256x16, .f32⟩ : BufTy).Contents (Elt F) → (⟨S4x256x16, .f32⟩ : BufTy).Contents (Elt F)),
    binary main_v6385 main_v6394 main_v6395 (addf : (⟨S4x256x16, .f32⟩ : BufTy).Contents (Elt F) → (⟨S4x256x16, .f32⟩ : BufTy).Contents (Elt F) → (⟨S4x256x16, .f32⟩ : BufTy).Contents (Elt F)),
    unary main_arg3 main_v6396 ((extractStridedSlice S4x1x16 ![0, 319, 0] · slices_S4x512x16_S4x1x16_0_319_0) : (⟨S4x512x16, .f32⟩ : BufTy).Contents (Elt F) → (⟨S4x1x16, .f32⟩ : BufTy).Contents (Elt F)),
    reshape main_v6396 main_v6397 rfl shapeCasts_S4x1x16_S4x16,
    unary main_v6397 main_v6398 (broadcastInDim S4x1x16 ![0, 2] bcast_S4x16_S4x1x16_0_2 : (⟨S4x16, .f32⟩ : BufTy).Contents (Elt F) → (⟨S4x1x16, .f32⟩ : BufTy).Contents (Elt F)),
    unary main_v6398 main_v6399 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6395 main_v6399 main_v6400 (mulf : (⟨S4x256x16, .f32⟩ : BufTy).Contents (Elt F) → (⟨S4x256x16, .f32⟩ : BufTy).Contents (Elt F) → (⟨S4x256x16, .f32⟩ : BufTy).Contents (Elt F)),
    nullary main_cst_638 (constant S_ .f32 0x00000000#32),
    binary main_v6400 main_cst_638 main_v6401 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_639 (constantI S_ 32 319#32),
    unary main_c_639 main_v6402 (broadcastInDim S1 ![] bcast_S_S1 : (⟨S_, .i32⟩ : BufTy).Contents (Elt F) → (⟨S1, .i32⟩ : BufTy).Contents (Elt F)),
    ternary main_v6383 main_v6402 main_v6401 main_v6403 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps319_ok : (stepOps319 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step319_val (V : Valuation τ sig (Elt Ideal)) :
    after (stepOps319 (F := Ideal)) V (no_index (Proc.devRef .tc main_v6395)) = stepH 319 (by decide) (V (Proc.devRef .tc main_arg0)) (V (Proc.devRef .tc main_v3)) (V (Proc.devRef .tc main_arg2)) (V (Proc.devRef .tc main_v6375))
    ∧ after (stepOps319 (F := Ideal)) V (no_index (Proc.devRef .tc main_v6403)) = stepY 319 (by decide) (V (Proc.devRef .tc main_arg3)) (stepH 319 (by decide) (V (Proc.devRef .tc main_arg0)) (V (Proc.devRef .tc main_v3)) (V (Proc.devRef .tc main_arg2)) (V (Proc.devRef .tc main_v6375))) (V (Proc.devRef .tc main_v6383)) := by
  simp only [stepOps319]
  after_results_simp
  first | exact ⟨rfl, rfl⟩ | fail "value"

end Cert.ReferenceIdeal.RefRun

end
-- ==== Proof.RefTableStep20.lean ====
/-
  Steps 320 … 335 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 320 of the loop: operations 7047 … 7068 of the program. -/
abbrev stepOps320 : List (HloOp τ sig (Elt F)) :=
  [ unary main_v3 main_v6404 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6395 main_v6404 main_v6405 (mulf : (⟨S4x256x16, .f32⟩ : BufTy).Contents (Elt F) → (⟨S4x256x16, .f32⟩ : BufTy).Contents (Elt F) → (⟨S4x256x16, .f32⟩ : BufTy).Contents (Elt F)),
    unary main_arg0 main_v6406 ((extractStridedSlice S4x1x256 ![0, 320, 0] · slices_S4x512x256_S4x1x256_0_320_0) : (⟨S4x512x256, .f32⟩ : BufTy).Contents (Elt F) → (⟨S4x1x256, .f32⟩ : BufTy).Contents (Elt F)),
    reshape main_v6406 main_v6407 rfl shapeCasts_S4x1x256_S4x256,
    unary main_v6407 main_v6408 (broadcastInDim S4x256x1 ![0, 1] bcast_S4x256_S4x256x1_0_1 : (⟨S4x256, .f32⟩ : BufTy).Contents (Elt F) → (⟨S4x256x1, .f32⟩ : BufTy).Contents (Elt F)),
    unary main_arg2 main_v6409 ((extractStridedSlice S4x1x16 ![0, 320, 0] · slices_S4x512x16_S4x1x16_0_320_0) : (⟨S4x512x16, .f32⟩ : BufTy).Contents (Elt F) → (⟨S4x1x16, .f32⟩ : BufTy).Contents (Elt F)),
    reshape main_v6409 main_v6410 rfl shapeCasts_S4x1x16_S4x16,
    unary main_v6410 main_v6411 (broadcastInDim S4x1x16 ![0, 2] bcast_S4x16_S4x1x16_0_2 : (⟨S4x16, .f32⟩ : BufTy).Contents (Elt F) → (⟨S4x1x16, .f32⟩ : BufTy).Contents (Elt F)),
    unary main_v6408 main_v6412 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6411 main_v6413 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6412 main_v6413 main_v6414 (mulf : (⟨S4x256x16, .f32⟩ : BufTy).Contents (Elt F) → (⟨S4x256x16, .f32⟩ : BufTy).Contents (Elt F) → (⟨S4x256x16, .f32⟩ : BufTy).Contents (Elt F)),
    binary main_v6405 main_v6414 main_v6415 (addf : (⟨S4x256x16, .f32⟩ : BufTy).Contents (Elt F) → (⟨S4x256x16, .f32⟩ : BufTy).Contents (Elt F) → (⟨S4x256x16, .f32⟩ : BufTy).Contents (Elt F)),
    unary main_arg3 main_v6416 ((extractStridedSlice S4x1x16 ![0, 320, 0] · slices_S4x512x16_S4x1x16_0_320_0) : (⟨S4x512x16, .f32⟩ : BufTy).Contents (Elt F) → (⟨S4x1x16, .f32⟩ : BufTy).Contents (Elt F)),
    reshape main_v6416 main_v6417 rfl shapeCasts_S4x1x16_S4x16,
    unary main_v6417 main_v6418 (broadcastInDim S4x1x16 ![0, 2] bcast_S4x16_S4x1x16_0_2 : (⟨S4x16, .f32⟩ : BufTy).Contents (Elt F) → (⟨S4x1x16, .f32⟩ : BufTy).Contents (Elt F)),
    unary main_v6418 main_v6419 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6415 main_v6419 main_v6420 (mulf : (⟨S4x256x16, .f32⟩ : BufTy).Contents (Elt F) → (⟨S4x256x16, .f32⟩ : BufTy).Contents (Elt F) → (⟨S4x256x16, .f32⟩ : BufTy).Contents (Elt F)),
    nullary main_cst_640 (constant S_ .f32 0x00000000#32),
    binary main_v6420 main_cst_640 main_v6421 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_641 (constantI S_ 32 320#32),
    unary main_c_641 main_v6422 (broadcastInDim S1 ![] bcast_S_S1 : (⟨S_, .i32⟩ : BufTy).Contents (Elt F) → (⟨S1, .i32⟩ : BufTy).Contents (Elt F)),
    ternary main_v6403 main_v6422 main_v6421 main_v6423 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps320_ok : (stepOps320 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step320_val (V : Valuation τ sig (Elt Ideal)) :
    after (stepOps320 (F := Ideal)) V (no_index (Proc.devRef .tc main_v6415)) = stepH 320 (by decide) (V (Proc.devRef .tc main_arg0)) (V (Proc.devRef .tc main_v3)) (V (Proc.devRef .tc main_arg2)) (V (Proc.devRef .tc main_v6395))
    ∧ after (stepOps320 (F := Ideal)) V (no_index (Proc.devRef .tc main_v6423)) = stepY 320 (by decide) (V (Proc.devRef .tc main_arg3)) (stepH 320 (by decide) (V (Proc.devRef .tc main_arg0)) (V (Proc.devRef .tc main_v3)) (V (Proc.devRef .tc main_arg2)) (V (Proc.devRef .tc main_v6395))) (V (Proc.devRef .tc main_v6403)) := by
  simp only [stepOps320]
  after_results_simp
  first | exact ⟨rfl, rfl⟩ | fail "value"
/-- Step 321 of the loop: operations 7069 … 7090 of the program. -/
abbrev stepOps321 : List (HloOp τ sig (Elt F)) :=
  [ unary main_v3 main_v6424 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6415 main_v6424 main_v6425 (mulf : (⟨S4x256x16, .f32⟩ : BufTy).Contents (Elt F) → (⟨S4x256x16, .f32⟩ : BufTy).Contents (Elt F) → (⟨S4x256x16, .f32⟩ : BufTy).Contents (Elt F)),
    unary main_arg0 main_v6426 ((extractStridedSlice S4x1x256 ![0, 321, 0] · slices_S4x512x256_S4x1x256_0_321_0) : (⟨S4x512x256, .f32⟩ : BufTy).Contents (Elt F) → (⟨S4x1x256, .f32⟩ : BufTy).Contents (Elt F)),
    reshape main_v6426 main_v6427 rfl shapeCasts_S4x1x256_S4x256,
    unary main_v6427 main_v6428 (broadcastInDim S4x256x1 ![0, 1] bcast_S4x256_S4x256x1_0_1 : (⟨S4x256, .f32⟩ : BufTy).Contents (Elt F) → (⟨S4x256x1, .f32⟩ : BufTy).Contents (Elt F)),
    unary main_arg2 main_v6429 ((extractStridedSlice S4x1x16 ![0, 321, 0] · slices_S4x512x16_S4x1x16_0_321_0) : (⟨S4x512x16, .f32⟩ : BufTy).Contents (Elt F) → (⟨S4x1x16, .f32⟩ : BufTy).Contents (Elt F)),
    reshape main_v6429 main_v6430 rfl shapeCasts_S4x1x16_S4x16,
    unary main_v6430 main_v6431 (broadcastInDim S4x1x16 ![0, 2] bcast_S4x16_S4x1x16_0_2 : (⟨S4x16, .f32⟩ : BufTy).Contents (Elt F) → (⟨S4x1x16, .f32⟩ : BufTy).Contents (Elt F)),
    unary main_v6428 main_v6432 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6431 main_v6433 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6432 main_v6433 main_v6434 (mulf : (⟨S4x256x16, .f32⟩ : BufTy).Contents (Elt F) → (⟨S4x256x16, .f32⟩ : BufTy).Contents (Elt F) → (⟨S4x256x16, .f32⟩ : BufTy).Contents (Elt F)),
    binary main_v6425 main_v6434 main_v6435 (addf : (⟨S4x256x16, .f32⟩ : BufTy).Contents (Elt F) → (⟨S4x256x16, .f32⟩ : BufTy).Contents (Elt F) → (⟨S4x256x16, .f32⟩ : BufTy).Contents (Elt F)),
    unary main_arg3 main_v6436 ((extractStridedSlice S4x1x16 ![0, 321, 0] · slices_S4x512x16_S4x1x16_0_321_0) : (⟨S4x512x16, .f32⟩ : BufTy).Contents (Elt F) → (⟨S4x1x16, .f32⟩ : BufTy).Contents (Elt F)),
    reshape main_v6436 main_v6437 rfl shapeCasts_S4x1x16_S4x16,
    unary main_v6437 main_v6438 (broadcastInDim S4x1x16 ![0, 2] bcast_S4x16_S4x1x16_0_2 : (⟨S4x16, .f32⟩ : BufTy).Contents (Elt F) → (⟨S4x1x16, .f32⟩ : BufTy).Contents (Elt F)),
    unary main_v6438 main_v6439 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6435 main_v6439 main_v6440 (mulf : (⟨S4x256x16, .f32⟩ : BufTy).Contents (Elt F) → (⟨S4x256x16, .f32⟩ : BufTy).Contents (Elt F) → (⟨S4x256x16, .f32⟩ : BufTy).Contents (Elt F)),
    nullary main_cst_642 (constant S_ .f32 0x00000000#32),
    binary main_v6440 main_cst_642 main_v6441 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_643 (constantI S_ 32 321#32),
    unary main_c_643 main_v6442 (broadcastInDim S1 ![] bcast_S_S1 : (⟨S_, .i32⟩ : BufTy).Contents (Elt F) → (⟨S1, .i32⟩ : BufTy).Contents (Elt F)),
    ternary main_v6423 main_v6442 main_v6441 main_v6443 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps321_ok : (stepOps321 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step321_val (V : Valuation τ sig (Elt Ideal)) :
    after (stepOps321 (F := Ideal)) V (no_index (Proc.devRef .tc main_v6435)) = stepH 321 (by decide) (V (Proc.devRef .tc main_arg0)) (V (Proc.devRef .tc main_v3)) (V (Proc.devRef .tc main_arg2)) (V (Proc.devRef .tc main_v6415))
    ∧ after (stepOps321 (F := Ideal)) V (no_index (Proc.devRef .tc main_v6443)) = stepY 321 (by decide) (V (Proc.devRef .tc main_arg3)) (stepH 321 (by decide) (V (Proc.devRef .tc main_arg0)) (V (Proc.devRef .tc main_v3)) (V (Proc.devRef .tc main_arg2)) (V (Proc.devRef .tc main_v6415))) (V (Proc.devRef .tc main_v6423)) := by
  simp only [stepOps321]
  after_results_simp
  first | exact ⟨rfl, rfl⟩ | fail "value"
/-- Step 322 of the loop: operations 7091 … 7112 of the program. -/
abbrev stepOps322 : List (HloOp τ sig (Elt F)) :=
  [ unary main_v3 main_v6444 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6435 main_v6444 main_v6445 (mulf : (⟨S4x256x16, .f32⟩ : BufTy).Contents (Elt F) → (⟨S4x256x16, .f32⟩ : BufTy).Contents (Elt F) → (⟨S4x256x16, .f32⟩ : BufTy).Contents (Elt F)),
    unary main_arg0 main_v6446 ((extractStridedSlice S4x1x256 ![0, 322, 0] · slices_S4x512x256_S4x1x256_0_322_0) : (⟨S4x512x256, .f32⟩ : BufTy).Contents (Elt F) → (⟨S4x1x256, .f32⟩ : BufTy).Contents (Elt F)),
    reshape main_v6446 main_v6447 rfl shapeCasts_S4x1x256_S4x256,
    unary main_v6447 main_v6448 (broadcastInDim S4x256x1 ![0, 1] bcast_S4x256_S4x256x1_0_1 : (⟨S4x256, .f32⟩ : BufTy).Contents (Elt F) → (⟨S4x256x1, .f32⟩ : BufTy).Contents (Elt F)),
    unary main_arg2 main_v6449 ((extractStridedSlice S4x1x16 ![0, 322, 0] · slices_S4x512x16_S4x1x16_0_322_0) : (⟨S4x512x16, .f32⟩ : BufTy).Contents (Elt F) → (⟨S4x1x16, .f32⟩ : BufTy).Contents (Elt F)),
    reshape main_v6449 main_v6450 rfl shapeCasts_S4x1x16_S4x16,
    unary main_v6450 main_v6451 (broadcastInDim S4x1x16 ![0, 2] bcast_S4x16_S4x1x16_0_2 : (⟨S4x16, .f32⟩ : BufTy).Contents (Elt F) → (⟨S4x1x16, .f32⟩ : BufTy).Contents (Elt F)),
    unary main_v6448 main_v6452 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6451 main_v6453 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6452 main_v6453 main_v6454 (mulf : (⟨S4x256x16, .f32⟩ : BufTy).Contents (Elt F) → (⟨S4x256x16, .f32⟩ : BufTy).Contents (Elt F) → (⟨S4x256x16, .f32⟩ : BufTy).Contents (Elt F)),
    binary main_v6445 main_v6454 main_v6455 (addf : (⟨S4x256x16, .f32⟩ : BufTy).Contents (Elt F) → (⟨S4x256x16, .f32⟩ : BufTy).Contents (Elt F) → (⟨S4x256x16, .f32⟩ : BufTy).Contents (Elt F)),
    unary main_arg3 main_v6456 ((extractStridedSlice S4x1x16 ![0, 322, 0] · slices_S4x512x16_S4x1x16_0_322_0) : (⟨S4x512x16, .f32⟩ : BufTy).Contents (Elt F) → (⟨S4x1x16, .f32⟩ : BufTy).Contents (Elt F)),
    reshape main_v6456 main_v6457 rfl shapeCasts_S4x1x16_S4x16,
    unary main_v6457 main_v6458 (broadcastInDim S4x1x16 ![0, 2] bcast_S4x16_S4x1x16_0_2 : (⟨S4x16, .f32⟩ : BufTy).Contents (Elt F) → (⟨S4x1x16, .f32⟩ : BufTy).Contents (Elt F)),
    unary main_v6458 main_v6459 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6455 main_v6459 main_v6460 (mulf : (⟨S4x256x16, .f32⟩ : BufTy).Contents (Elt F) → (⟨S4x256x16, .f32⟩ : BufTy).Contents (Elt F) → (⟨S4x256x16, .f32⟩ : BufTy).Contents (Elt F)),
    nullary main_cst_644 (constant S_ .f32 0x00000000#32),
    binary main_v6460 main_cst_644 main_v6461 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_645 (constantI S_ 32 322#32),
    unary main_c_645 main_v6462 (broadcastInDim S1 ![] bcast_S_S1 : (⟨S_, .i32⟩ : BufTy).Contents (Elt F) → (⟨S1, .i32⟩ : BufTy).Contents (Elt F)),
    ternary main_v6443 main_v6462 main_v6461 main_v6463 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps322_ok : (stepOps322 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step322_val (V : Valuation τ sig (Elt Ideal)) :
    after (stepOps322 (F := Ideal)) V (no_index (Proc.devRef .tc main_v6455)) = stepH 322 (by decide) (V (Proc.devRef .tc main_arg0)) (V (Proc.devRef .tc main_v3)) (V (Proc.devRef .tc main_arg2)) (V (Proc.devRef .tc main_v6435))
    ∧ after (stepOps322 (F := Ideal)) V (no_index (Proc.devRef .tc main_v6463)) = stepY 322 (by decide) (V (Proc.devRef .tc main_arg3)) (stepH 322 (by decide) (V (Proc.devRef .tc main_arg0)) (V (Proc.devRef .tc main_v3)) (V (Proc.devRef .tc main_arg2)) (V (Proc.devRef .tc main_v6435))) (V (Proc.devRef .tc main_v6443)) := by
  simp only [stepOps322]
  after_results_simp
  first | exact ⟨rfl, rfl⟩ | fail "value"
/-- Step 323 of the loop: operations 7113 … 7134 of the program. -/
abbrev stepOps323 : List (HloOp τ sig (Elt F)) :=
  [ unary main_v3 main_v6464 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6455 main_v6464 main_v6465 (mulf : (⟨S4x256x16, .f32⟩ : BufTy).Contents (Elt F) → (⟨S4x256x16, .f32⟩ : BufTy).Contents (Elt F) → (⟨S4x256x16, .f32⟩ : BufTy).Contents (Elt F)),
    unary main_arg0 main_v6466 ((extractStridedSlice S4x1x256 ![0, 323, 0] · slices_S4x512x256_S4x1x256_0_323_0) : (⟨S4x512x256, .f32⟩ : BufTy).Contents (Elt F) → (⟨S4x1x256, .f32⟩ : BufTy).Contents (Elt F)),
    reshape main_v6466 main_v6467 rfl shapeCasts_S4x1x256_S4x256,
    unary main_v6467 main_v6468 (broadcastInDim S4x256x1 ![0, 1] bcast_S4x256_S4x256x1_0_1 : (⟨S4x256, .f32⟩ : BufTy).Contents (Elt F) → (⟨S4x256x1, .f32⟩ : BufTy).Contents (Elt F)),
    unary main_arg2 main_v6469 ((extractStridedSlice S4x1x16 ![0, 323, 0] · slices_S4x512x16_S4x1x16_0_323_0) : (⟨S4x512x16, .f32⟩ : BufTy).Contents (Elt F) → (⟨S4x1x16, .f32⟩ : BufTy).Contents (Elt F)),
    reshape main_v6469 main_v6470 rfl shapeCasts_S4x1x16_S4x16,
    unary main_v6470 main_v6471 (broadcastInDim S4x1x16 ![0, 2] bcast_S4x16_S4x1x16_0_2 : (⟨S4x16, .f32⟩ : BufTy).Contents (Elt F) → (⟨S4x1x16, .f32⟩ : BufTy).Contents (Elt F)),
    unary main_v6468 main_v6472 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6471 main_v6473 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6472 main_v6473 main_v6474 (mulf : (⟨S4x256x16, .f32⟩ : BufTy).Contents (Elt F) → (⟨S4x256x16, .f32⟩ : BufTy).Contents (Elt F) → (⟨S4x256x16, .f32⟩ : BufTy).Contents (Elt F)),
    binary main_v6465 main_v6474 main_v6475 (addf : (⟨S4x256x16, .f32⟩ : BufTy).Contents (Elt F) → (⟨S4x256x16, .f32⟩ : BufTy).Contents (Elt F) → (⟨S4x256x16, .f32⟩ : BufTy).Contents (Elt F)),
    unary main_arg3 main_v6476 ((extractStridedSlice S4x1x16 ![0, 323, 0] · slices_S4x512x16_S4x1x16_0_323_0) : (⟨S4x512x16, .f32⟩ : BufTy).Contents (Elt F) → (⟨S4x1x16, .f32⟩ : BufTy).Contents (Elt F)),
    reshape main_v6476 main_v6477 rfl shapeCasts_S4x1x16_S4x16,
    unary main_v6477 main_v6478 (broadcastInDim S4x1x16 ![0, 2] bcast_S4x16_S4x1x16_0_2 : (⟨S4x16, .f32⟩ : BufTy).Contents (Elt F) → (⟨S4x1x16, .f32⟩ : BufTy).Contents (Elt F)),
    unary main_v6478 main_v6479 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6475 main_v6479 main_v6480 (mulf : (⟨S4x256x16, .f32⟩ : BufTy).Contents (Elt F) → (⟨S4x256x16, .f32⟩ : BufTy).Contents (Elt F) → (⟨S4x256x16, .f32⟩ : BufTy).Contents (Elt F)),
    nullary main_cst_646 (constant S_ .f32 0x00000000#32),
    binary main_v6480 main_cst_646 main_v6481 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_647 (constantI S_ 32 323#32),
    unary main_c_647 main_v6482 (broadcastInDim S1 ![] bcast_S_S1 : (⟨S_, .i32⟩ : BufTy).Contents (Elt F) → (⟨S1, .i32⟩ : BufTy).Contents (Elt F)),
    ternary main_v6463 main_v6482 main_v6481 main_v6483 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps323_ok : (stepOps323 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step323_val (V : Valuation τ sig (Elt Ideal)) :
    after (stepOps323 (F := Ideal)) V (no_index (Proc.devRef .tc main_v6475)) = stepH 323 (by decide) (V (Proc.devRef .tc main_arg0)) (V (Proc.devRef .tc main_v3)) (V (Proc.devRef .tc main_arg2)) (V (Proc.devRef .tc main_v6455))
    ∧ after (stepOps323 (F := Ideal)) V (no_index (Proc.devRef .tc main_v6483)) = stepY 323 (by decide) (V (Proc.devRef .tc main_arg3)) (stepH 323 (by decide) (V (Proc.devRef .tc main_arg0)) (V (Proc.devRef .tc main_v3)) (V (Proc.devRef .tc main_arg2)) (V (Proc.devRef .tc main_v6455))) (V (Proc.devRef .tc main_v6463)) := by
  simp only [stepOps323]
  after_results_simp
  first | exact ⟨rfl, rfl⟩ | fail "value"
/-- Step 324 of the loop: operations 7135 … 7156 of the program. -/
abbrev stepOps324 : List (HloOp τ sig (Elt F)) :=
  [ unary main_v3 main_v6484 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6475 main_v6484 main_v6485 (mulf : (⟨S4x256x16, .f32⟩ : BufTy).Contents (Elt F) → (⟨S4x256x16, .f32⟩ : BufTy).Contents (Elt F) → (⟨S4x256x16, .f32⟩ : BufTy).Contents (Elt F)),
    unary main_arg0 main_v6486 ((extractStridedSlice S4x1x256 ![0, 324, 0] · slices_S4x512x256_S4x1x256_0_324_0) : (⟨S4x512x256, .f32⟩ : BufTy).Contents (Elt F) → (⟨S4x1x256, .f32⟩ : BufTy).Contents (Elt F)),
    reshape main_v6486 main_v6487 rfl shapeCasts_S4x1x256_S4x256,
    unary main_v6487 main_v6488 (broadcastInDim S4x256x1 ![0, 1] bcast_S4x256_S4x256x1_0_1 : (⟨S4x256, .f32⟩ : BufTy).Contents (Elt F) → (⟨S4x256x1, .f32⟩ : BufTy).Contents (Elt F)),
    unary main_arg2 main_v6489 ((extractStridedSlice S4x1x16 ![0, 324, 0] · slices_S4x512x16_S4x1x16_0_324_0) : (⟨S4x512x16, .f32⟩ : BufTy).Contents (Elt F) → (⟨S4x1x16, .f32⟩ : BufTy).Contents (Elt F)),
    reshape main_v6489 main_v6490 rfl shapeCasts_S4x1x16_S4x16,
    unary main_v6490 main_v6491 (broadcastInDim S4x1x16 ![0, 2] bcast_S4x16_S4x1x16_0_2 : (⟨S4x16, .f32⟩ : BufTy).Contents (Elt F) → (⟨S4x1x16, .f32⟩ : BufTy).Contents (Elt F)),
    unary main_v6488 main_v6492 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6491 main_v6493 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6492 main_v6493 main_v6494 (mulf : (⟨S4x256x16, .f32⟩ : BufTy).Contents (Elt F) → (⟨S4x256x16, .f32⟩ : BufTy).Contents (Elt F) → (⟨S4x256x16, .f32⟩ : BufTy).Contents (Elt F)),
    binary main_v6485 main_v6494 main_v6495 (addf : (⟨S4x256x16, .f32⟩ : BufTy).Contents (Elt F) → (⟨S4x256x16, .f32⟩ : BufTy).Contents (Elt F) → (⟨S4x256x16, .f32⟩ : BufTy).Contents (Elt F)),
    unary main_arg3 main_v6496 ((extractStridedSlice S4x1x16 ![0, 324, 0] · slices_S4x512x16_S4x1x16_0_324_0) : (⟨S4x512x16, .f32⟩ : BufTy).Contents (Elt F) → (⟨S4x1x16, .f32⟩ : BufTy).Contents (Elt F)),
    reshape main_v6496 main_v6497 rfl shapeCasts_S4x1x16_S4x16,
    unary main_v6497 main_v6498 (broadcastInDim S4x1x16 ![0, 2] bcast_S4x16_S4x1x16_0_2 : (⟨S4x16, .f32⟩ : BufTy).Contents (Elt F) → (⟨S4x1x16, .f32⟩ : BufTy).Contents (Elt F)),
    unary main_v6498 main_v6499 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6495 main_v6499 main_v6500 (mulf : (⟨S4x256x16, .f32⟩ : BufTy).Contents (Elt F) → (⟨S4x256x16, .f32⟩ : BufTy).Contents (Elt F) → (⟨S4x256x16, .f32⟩ : BufTy).Contents (Elt F)),
    nullary main_cst_648 (constant S_ .f32 0x00000000#32),
    binary main_v6500 main_cst_648 main_v6501 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_649 (constantI S_ 32 324#32),
    unary main_c_649 main_v6502 (broadcastInDim S1 ![] bcast_S_S1 : (⟨S_, .i32⟩ : BufTy).Contents (Elt F) → (⟨S1, .i32⟩ : BufTy).Contents (Elt F)),
    ternary main_v6483 main_v6502 main_v6501 main_v6503 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps324_ok : (stepOps324 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step324_val (V : Valuation τ sig (Elt Ideal)) :
    after (stepOps324 (F := Ideal)) V (no_index (Proc.devRef .tc main_v6495)) = stepH 324 (by decide) (V (Proc.devRef .tc main_arg0)) (V (Proc.devRef .tc main_v3)) (V (Proc.devRef .tc main_arg2)) (V (Proc.devRef .tc main_v6475))
    ∧ after (stepOps324 (F := Ideal)) V (no_index (Proc.devRef .tc main_v6503)) = stepY 324 (by decide) (V (Proc.devRef .tc main_arg3)) (stepH 324 (by decide) (V (Proc.devRef .tc main_arg0)) (V (Proc.devRef .tc main_v3)) (V (Proc.devRef .tc main_arg2)) (V (Proc.devRef .tc main_v6475))) (V (Proc.devRef .tc main_v6483)) := by
  simp only [stepOps324]
  after_results_simp
  first | exact ⟨rfl, rfl⟩ | fail "value"
/-- Step 325 of the loop: operations 7157 … 7178 of the program. -/
abbrev stepOps325 : List (HloOp τ sig (Elt F)) :=
  [ unary main_v3 main_v6504 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6495 main_v6504 main_v6505 (mulf : (⟨S4x256x16, .f32⟩ : BufTy).Contents (Elt F) → (⟨S4x256x16, .f32⟩ : BufTy).Contents (Elt F) → (⟨S4x256x16, .f32⟩ : BufTy).Contents (Elt F)),
    unary main_arg0 main_v6506 ((extractStridedSlice S4x1x256 ![0, 325, 0] · slices_S4x512x256_S4x1x256_0_325_0) : (⟨S4x512x256, .f32⟩ : BufTy).Contents (Elt F) → (⟨S4x1x256, .f32⟩ : BufTy).Contents (Elt F)),
    reshape main_v6506 main_v6507 rfl shapeCasts_S4x1x256_S4x256,
    unary main_v6507 main_v6508 (broadcastInDim S4x256x1 ![0, 1] bcast_S4x256_S4x256x1_0_1 : (⟨S4x256, .f32⟩ : BufTy).Contents (Elt F) → (⟨S4x256x1, .f32⟩ : BufTy).Contents (Elt F)),
    unary main_arg2 main_v6509 ((extractStridedSlice S4x1x16 ![0, 325, 0] · slices_S4x512x16_S4x1x16_0_325_0) : (⟨S4x512x16, .f32⟩ : BufTy).Contents (Elt F) → (⟨S4x1x16, .f32⟩ : BufTy).Contents (Elt F)),
    reshape main_v6509 main_v6510 rfl shapeCasts_S4x1x16_S4x16,
    unary main_v6510 main_v6511 (broadcastInDim S4x1x16 ![0, 2] bcast_S4x16_S4x1x16_0_2 : (⟨S4x16, .f32⟩ : BufTy).Contents (Elt F) → (⟨S4x1x16, .f32⟩ : BufTy).Contents (Elt F)),
    unary main_v6508 main_v6512 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6511 main_v6513 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6512 main_v6513 main_v6514 (mulf : (⟨S4x256x16, .f32⟩ : BufTy).Contents (Elt F) → (⟨S4x256x16, .f32⟩ : BufTy).Contents (Elt F) → (⟨S4x256x16, .f32⟩ : BufTy).Contents (Elt F)),
    binary main_v6505 main_v6514 main_v6515 (addf : (⟨S4x256x16, .f32⟩ : BufTy).Contents (Elt F) → (⟨S4x256x16, .f32⟩ : BufTy).Contents (Elt F) → (⟨S4x256x16, .f32⟩ : BufTy).Contents (Elt F)),
    unary main_arg3 main_v6516 ((extractStridedSlice S4x1x16 ![0, 325, 0] · slices_S4x512x16_S4x1x16_0_325_0) : (⟨S4x512x16, .f32⟩ : BufTy).Contents (Elt F) → (⟨S4x1x16, .f32⟩ : BufTy).Contents (Elt F)),
    reshape main_v6516 main_v6517 rfl shapeCasts_S4x1x16_S4x16,
    unary main_v6517 main_v6518 (broadcastInDim S4x1x16 ![0, 2] bcast_S4x16_S4x1x16_0_2 : (⟨S4x16, .f32⟩ : BufTy).Contents (Elt F) → (⟨S4x1x16, .f32⟩ : BufTy).Contents (Elt F)),
    unary main_v6518 main_v6519 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6515 main_v6519 main_v6520 (mulf : (⟨S4x256x16, .f32⟩ : BufTy).Contents (Elt F) → (⟨S4x256x16, .f32⟩ : BufTy).Contents (Elt F) → (⟨S4x256x16, .f32⟩ : BufTy).Contents (Elt F)),
    nullary main_cst_650 (constant S_ .f32 0x00000000#32),
    binary main_v6520 main_cst_650 main_v6521 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_651 (constantI S_ 32 325#32),
    unary main_c_651 main_v6522 (broadcastInDim S1 ![] bcast_S_S1 : (⟨S_, .i32⟩ : BufTy).Contents (Elt F) → (⟨S1, .i32⟩ : BufTy).Contents (Elt F)),
    ternary main_v6503 main_v6522 main_v6521 main_v6523 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps325_ok : (stepOps325 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step325_val (V : Valuation τ sig (Elt Ideal)) :
    after (stepOps325 (F := Ideal)) V (no_index (Proc.devRef .tc main_v6515)) = stepH 325 (by decide) (V (Proc.devRef .tc main_arg0)) (V (Proc.devRef .tc main_v3)) (V (Proc.devRef .tc main_arg2)) (V (Proc.devRef .tc main_v6495))
    ∧ after (stepOps325 (F := Ideal)) V (no_index (Proc.devRef .tc main_v6523)) = stepY 325 (by decide) (V (Proc.devRef .tc main_arg3)) (stepH 325 (by decide) (V (Proc.devRef .tc main_arg0)) (V (Proc.devRef .tc main_v3)) (V (Proc.devRef .tc main_arg2)) (V (Proc.devRef .tc main_v6495))) (V (Proc.devRef .tc main_v6503)) := by
  simp only [stepOps325]
  after_results_simp
  first | exact ⟨rfl, rfl⟩ | fail "value"
/-- Step 326 of the loop: operations 7179 … 7200 of the program. -/
abbrev stepOps326 : List (HloOp τ sig (Elt F)) :=
  [ unary main_v3 main_v6524 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6515 main_v6524 main_v6525 (mulf : (⟨S4x256x16, .f32⟩ : BufTy).Contents (Elt F) → (⟨S4x256x16, .f32⟩ : BufTy).Contents (Elt F) → (⟨S4x256x16, .f32⟩ : BufTy).Contents (Elt F)),
    unary main_arg0 main_v6526 ((extractStridedSlice S4x1x256 ![0, 326, 0] · slices_S4x512x256_S4x1x256_0_326_0) : (⟨S4x512x256, .f32⟩ : BufTy).Contents (Elt F) → (⟨S4x1x256, .f32⟩ : BufTy).Contents (Elt F)),
    reshape main_v6526 main_v6527 rfl shapeCasts_S4x1x256_S4x256,
    unary main_v6527 main_v6528 (broadcastInDim S4x256x1 ![0, 1] bcast_S4x256_S4x256x1_0_1 : (⟨S4x256, .f32⟩ : BufTy).Contents (Elt F) → (⟨S4x256x1, .f32⟩ : BufTy).Contents (Elt F)),
    unary main_arg2 main_v6529 ((extractStridedSlice S4x1x16 ![0, 326, 0] · slices_S4x512x16_S4x1x16_0_326_0) : (⟨S4x512x16, .f32⟩ : BufTy).Contents (Elt F) → (⟨S4x1x16, .f32⟩ : BufTy).Contents (Elt F)),
    reshape main_v6529 main_v6530 rfl shapeCasts_S4x1x16_S4x16,
    unary main_v6530 main_v6531 (broadcastInDim S4x1x16 ![0, 2] bcast_S4x16_S4x1x16_0_2 : (⟨S4x16, .f32⟩ : BufTy).Contents (Elt F) → (⟨S4x1x16, .f32⟩ : BufTy).Contents (Elt F)),
    unary main_v6528 main_v6532 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6531 main_v6533 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6532 main_v6533 main_v6534 (mulf : (⟨S4x256x16, .f32⟩ : BufTy).Contents (Elt F) → (⟨S4x256x16, .f32⟩ : BufTy).Contents (Elt F) → (⟨S4x256x16, .f32⟩ : BufTy).Contents (Elt F)),
    binary main_v6525 main_v6534 main_v6535 (addf : (⟨S4x256x16, .f32⟩ : BufTy).Contents (Elt F) → (⟨S4x256x16, .f32⟩ : BufTy).Contents (Elt F) → (⟨S4x256x16, .f32⟩ : BufTy).Contents (Elt F)),
    unary main_arg3 main_v6536 ((extractStridedSlice S4x1x16 ![0, 326, 0] · slices_S4x512x16_S4x1x16_0_326_0) : (⟨S4x512x16, .f32⟩ : BufTy).Contents (Elt F) → (⟨S4x1x16, .f32⟩ : BufTy).Contents (Elt F)),
    reshape main_v6536 main_v6537 rfl shapeCasts_S4x1x16_S4x16,
    unary main_v6537 main_v6538 (broadcastInDim S4x1x16 ![0, 2] bcast_S4x16_S4x1x16_0_2 : (⟨S4x16, .f32⟩ : BufTy).Contents (Elt F) → (⟨S4x1x16, .f32⟩ : BufTy).Contents (Elt F)),
    unary main_v6538 main_v6539 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6535 main_v6539 main_v6540 (mulf : (⟨S4x256x16, .f32⟩ : BufTy).Contents (Elt F) → (⟨S4x256x16, .f32⟩ : BufTy).Contents (Elt F) → (⟨S4x256x16, .f32⟩ : BufTy).Contents (Elt F)),
    nullary main_cst_652 (constant S_ .f32 0x00000000#32),
    binary main_v6540 main_cst_652 main_v6541 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_653 (constantI S_ 32 326#32),
    unary main_c_653 main_v6542 (broadcastInDim S1 ![] bcast_S_S1 : (⟨S_, .i32⟩ : BufTy).Contents (Elt F) → (⟨S1, .i32⟩ : BufTy).Contents (Elt F)),
    ternary main_v6523 main_v6542 main_v6541 main_v6543 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps326_ok : (stepOps326 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step326_val (V : Valuation τ sig (Elt Ideal)) :
    after (stepOps326 (F := Ideal)) V (no_index (Proc.devRef .tc main_v6535)) = stepH 326 (by decide) (V (Proc.devRef .tc main_arg0)) (V (Proc.devRef .tc main_v3)) (V (Proc.devRef .tc main_arg2)) (V (Proc.devRef .tc main_v6515))
    ∧ after (stepOps326 (F := Ideal)) V (no_index (Proc.devRef .tc main_v6543)) = stepY 326 (by decide) (V (Proc.devRef .tc main_arg3)) (stepH 326 (by decide) (V (Proc.devRef .tc main_arg0)) (V (Proc.devRef .tc main_v3)) (V (Proc.devRef .tc main_arg2)) (V (Proc.devRef .tc main_v6515))) (V (Proc.devRef .tc main_v6523)) := by
  simp only [stepOps326]
  after_results_simp
  first | exact ⟨rfl, rfl⟩ | fail "value"
/-- Step 327 of the loop: operations 7201 … 7222 of the program. -/
abbrev stepOps327 : List (HloOp τ sig (Elt F)) :=
  [ unary main_v3 main_v6544 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6535 main_v6544 main_v6545 (mulf : (⟨S4x256x16, .f32⟩ : BufTy).Contents (Elt F) → (⟨S4x256x16, .f32⟩ : BufTy).Contents (Elt F) → (⟨S4x256x16, .f32⟩ : BufTy).Contents (Elt F)),
    unary main_arg0 main_v6546 ((extractStridedSlice S4x1x256 ![0, 327, 0] · slices_S4x512x256_S4x1x256_0_327_0) : (⟨S4x512x256, .f32⟩ : BufTy).Contents (Elt F) → (⟨S4x1x256, .f32⟩ : BufTy).Contents (Elt F)),
    reshape main_v6546 main_v6547 rfl shapeCasts_S4x1x256_S4x256,
    unary main_v6547 main_v6548 (broadcastInDim S4x256x1 ![0, 1] bcast_S4x256_S4x256x1_0_1 : (⟨S4x256, .f32⟩ : BufTy).Contents (Elt F) → (⟨S4x256x1, .f32⟩ : BufTy).Contents (Elt F)),
    unary main_arg2 main_v6549 ((extractStridedSlice S4x1x16 ![0, 327, 0] · slices_S4x512x16_S4x1x16_0_327_0) : (⟨S4x512x16, .f32⟩ : BufTy).Contents (Elt F) → (⟨S4x1x16, .f32⟩ : BufTy).Contents (Elt F)),
    reshape main_v6549 main_v6550 rfl shapeCasts_S4x1x16_S4x16,
    unary main_v6550 main_v6551 (broadcastInDim S4x1x16 ![0, 2] bcast_S4x16_S4x1x16_0_2 : (⟨S4x16, .f32⟩ : BufTy).Contents (Elt F) → (⟨S4x1x16, .f32⟩ : BufTy).Contents (Elt F)),
    unary main_v6548 main_v6552 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6551 main_v6553 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6552 main_v6553 main_v6554 (mulf : (⟨S4x256x16, .f32⟩ : BufTy).Contents (Elt F) → (⟨S4x256x16, .f32⟩ : BufTy).Contents (Elt F) → (⟨S4x256x16, .f32⟩ : BufTy).Contents (Elt F)),
    binary main_v6545 main_v6554 main_v6555 (addf : (⟨S4x256x16, .f32⟩ : BufTy).Contents (Elt F) → (⟨S4x256x16, .f32⟩ : BufTy).Contents (Elt F) → (⟨S4x256x16, .f32⟩ : BufTy).Contents (Elt F)),
    unary main_arg3 main_v6556 ((extractStridedSlice S4x1x16 ![0, 327, 0] · slices_S4x512x16_S4x1x16_0_327_0) : (⟨S4x512x16, .f32⟩ : BufTy).Contents (Elt F) → (⟨S4x1x16, .f32⟩ : BufTy).Contents (Elt F)),
    reshape main_v6556 main_v6557 rfl shapeCasts_S4x1x16_S4x16,
    unary main_v6557 main_v6558 (broadcastInDim S4x1x16 ![0, 2] bcast_S4x16_S4x1x16_0_2 : (⟨S4x16, .f32⟩ : BufTy).Contents (Elt F) → (⟨S4x1x16, .f32⟩ : BufTy).Contents (Elt F)),
    unary main_v6558 main_v6559 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6555 main_v6559 main_v6560 (mulf : (⟨S4x256x16, .f32⟩ : BufTy).Contents (Elt F) → (⟨S4x256x16, .f32⟩ : BufTy).Contents (Elt F) → (⟨S4x256x16, .f32⟩ : BufTy).Contents (Elt F)),
    nullary main_cst_654 (constant S_ .f32 0x00000000#32),
    binary main_v6560 main_cst_654 main_v6561 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_655 (constantI S_ 32 327#32),
    unary main_c_655 main_v6562 (broadcastInDim S1 ![] bcast_S_S1 : (⟨S_, .i32⟩ : BufTy).Contents (Elt F) → (⟨S1, .i32⟩ : BufTy).Contents (Elt F)),
    ternary main_v6543 main_v6562 main_v6561 main_v6563 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps327_ok : (stepOps327 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step327_val (V : Valuation τ sig (Elt Ideal)) :
    after (stepOps327 (F := Ideal)) V (no_index (Proc.devRef .tc main_v6555)) = stepH 327 (by decide) (V (Proc.devRef .tc main_arg0)) (V (Proc.devRef .tc main_v3)) (V (Proc.devRef .tc main_arg2)) (V (Proc.devRef .tc main_v6535))
    ∧ after (stepOps327 (F := Ideal)) V (no_index (Proc.devRef .tc main_v6563)) = stepY 327 (by decide) (V (Proc.devRef .tc main_arg3)) (stepH 327 (by decide) (V (Proc.devRef .tc main_arg0)) (V (Proc.devRef .tc main_v3)) (V (Proc.devRef .tc main_arg2)) (V (Proc.devRef .tc main_v6535))) (V (Proc.devRef .tc main_v6543)) := by
  simp only [stepOps327]
  after_results_simp
  first | exact ⟨rfl, rfl⟩ | fail "value"
/-- Step 328 of the loop: operations 7223 … 7244 of the program. -/
abbrev stepOps328 : List (HloOp τ sig (Elt F)) :=
  [ unary main_v3 main_v6564 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6555 main_v6564 main_v6565 (mulf : (⟨S4x256x16, .f32⟩ : BufTy).Contents (Elt F) → (⟨S4x256x16, .f32⟩ : BufTy).Contents (Elt F) → (⟨S4x256x16, .f32⟩ : BufTy).Contents (Elt F)),
    unary main_arg0 main_v6566 ((extractStridedSlice S4x1x256 ![0, 328, 0] · slices_S4x512x256_S4x1x256_0_328_0) : (⟨S4x512x256, .f32⟩ : BufTy).Contents (Elt F) → (⟨S4x1x256, .f32⟩ : BufTy).Contents (Elt F)),
    reshape main_v6566 main_v6567 rfl shapeCasts_S4x1x256_S4x256,
    unary main_v6567 main_v6568 (broadcastInDim S4x256x1 ![0, 1] bcast_S4x256_S4x256x1_0_1 : (⟨S4x256, .f32⟩ : BufTy).Contents (Elt F) → (⟨S4x256x1, .f32⟩ : BufTy).Contents (Elt F)),
    unary main_arg2 main_v6569 ((extractStridedSlice S4x1x16 ![0, 328, 0] · slices_S4x512x16_S4x1x16_0_328_0) : (⟨S4x512x16, .f32⟩ : BufTy).Contents (Elt F) → (⟨S4x1x16, .f32⟩ : BufTy).Contents (Elt F)),
    reshape main_v6569 main_v6570 rfl shapeCasts_S4x1x16_S4x16,
    unary main_v6570 main_v6571 (broadcastInDim S4x1x16 ![0, 2] bcast_S4x16_S4x1x16_0_2 : (⟨S4x16, .f32⟩ : BufTy).Contents (Elt F) → (⟨S4x1x16, .f32⟩ : BufTy).Contents (Elt F)),
    unary main_v6568 main_v6572 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6571 main_v6573 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6572 main_v6573 main_v6574 (mulf : (⟨S4x256x16, .f32⟩ : BufTy).Contents (Elt F) → (⟨S4x256x16, .f32⟩ : BufTy).Contents (Elt F) → (⟨S4x256x16, .f32⟩ : BufTy).Contents (Elt F)),
    binary main_v6565 main_v6574 main_v6575 (addf : (⟨S4x256x16, .f32⟩ : BufTy).Contents (Elt F) → (⟨S4x256x16, .f32⟩ : BufTy).Contents (Elt F) → (⟨S4x256x16, .f32⟩ : BufTy).Contents (Elt F)),
    unary main_arg3 main_v6576 ((extractStridedSlice S4x1x16 ![0, 328, 0] · slices_S4x512x16_S4x1x16_0_328_0) : (⟨S4x512x16, .f32⟩ : BufTy).Contents (Elt F) → (⟨S4x1x16, .f32⟩ : BufTy).Contents (Elt F)),
    reshape main_v6576 main_v6577 rfl shapeCasts_S4x1x16_S4x16,
    unary main_v6577 main_v6578 (broadcastInDim S4x1x16 ![0, 2] bcast_S4x16_S4x1x16_0_2 : (⟨S4x16, .f32⟩ : BufTy).Contents (Elt F) → (⟨S4x1x16, .f32⟩ : BufTy).Contents (Elt F)),
    unary main_v6578 main_v6579 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6575 main_v6579 main_v6580 (mulf : (⟨S4x256x16, .f32⟩ : BufTy).Contents (Elt F) → (⟨S4x256x16, .f32⟩ : BufTy).Contents (Elt F) → (⟨S4x256x16, .f32⟩ : BufTy).Contents (Elt F)),
    nullary main_cst_656 (constant S_ .f32 0x00000000#32),
    binary main_v6580 main_cst_656 main_v6581 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_657 (constantI S_ 32 328#32),
    unary main_c_657 main_v6582 (broadcastInDim S1 ![] bcast_S_S1 : (⟨S_, .i32⟩ : BufTy).Contents (Elt F) → (⟨S1, .i32⟩ : BufTy).Contents (Elt F)),
    ternary main_v6563 main_v6582 main_v6581 main_v6583 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps328_ok : (stepOps328 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step328_val (V : Valuation τ sig (Elt Ideal)) :
    after (stepOps328 (F := Ideal)) V (no_index (Proc.devRef .tc main_v6575)) = stepH 328 (by decide) (V (Proc.devRef .tc main_arg0)) (V (Proc.devRef .tc main_v3)) (V (Proc.devRef .tc main_arg2)) (V (Proc.devRef .tc main_v6555))
    ∧ after (stepOps328 (F := Ideal)) V (no_index (Proc.devRef .tc main_v6583)) = stepY 328 (by decide) (V (Proc.devRef .tc main_arg3)) (stepH 328 (by decide) (V (Proc.devRef .tc main_arg0)) (V (Proc.devRef .tc main_v3)) (V (Proc.devRef .tc main_arg2)) (V (Proc.devRef .tc main_v6555))) (V (Proc.devRef .tc main_v6563)) := by
  simp only [stepOps328]
  after_results_simp
  first | exact ⟨rfl, rfl⟩ | fail "value"
/-- Step 329 of the loop: operations 7245 … 7266 of the program. -/
abbrev stepOps329 : List (HloOp τ sig (Elt F)) :=
  [ unary main_v3 main_v6584 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6575 main_v6584 main_v6585 (mulf : (⟨S4x256x16, .f32⟩ : BufTy).Contents (Elt F) → (⟨S4x256x16, .f32⟩ : BufTy).Contents (Elt F) → (⟨S4x256x16, .f32⟩ : BufTy).Contents (Elt F)),
    unary main_arg0 main_v6586 ((extractStridedSlice S4x1x256 ![0, 329, 0] · slices_S4x512x256_S4x1x256_0_329_0) : (⟨S4x512x256, .f32⟩ : BufTy).Contents (Elt F) → (⟨S4x1x256, .f32⟩ : BufTy).Contents (Elt F)),
    reshape main_v6586 main_v6587 rfl shapeCasts_S4x1x256_S4x256,
    unary main_v6587 main_v6588 (broadcastInDim S4x256x1 ![0, 1] bcast_S4x256_S4x256x1_0_1 : (⟨S4x256, .f32⟩ : BufTy).Contents (Elt F) → (⟨S4x256x1, .f32⟩ : BufTy).Contents (Elt F)),
    unary main_arg2 main_v6589 ((extractStridedSlice S4x1x16 ![0, 329, 0] · slices_S4x512x16_S4x1x16_0_329_0) : (⟨S4x512x16, .f32⟩ : BufTy).Contents (Elt F) → (⟨S4x1x16, .f32⟩ : BufTy).Contents (Elt F)),
    reshape main_v6589 main_v6590 rfl shapeCasts_S4x1x16_S4x16,
    unary main_v6590 main_v6591 (broadcastInDim S4x1x16 ![0, 2] bcast_S4x16_S4x1x16_0_2 : (⟨S4x16, .f32⟩ : BufTy).Contents (Elt F) → (⟨S4x1x16, .f32⟩ : BufTy).Contents (Elt F)),
    unary main_v6588 main_v6592 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6591 main_v6593 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6592 main_v6593 main_v6594 (mulf : (⟨S4x256x16, .f32⟩ : BufTy).Contents (Elt F) → (⟨S4x256x16, .f32⟩ : BufTy).Contents (Elt F) → (⟨S4x256x16, .f32⟩ : BufTy).Contents (Elt F)),
    binary main_v6585 main_v6594 main_v6595 (addf : (⟨S4x256x16, .f32⟩ : BufTy).Contents (Elt F) → (⟨S4x256x16, .f32⟩ : BufTy).Contents (Elt F) → (⟨S4x256x16, .f32⟩ : BufTy).Contents (Elt F)),
    unary main_arg3 main_v6596 ((extractStridedSlice S4x1x16 ![0, 329, 0] · slices_S4x512x16_S4x1x16_0_329_0) : (⟨S4x512x16, .f32⟩ : BufTy).Contents (Elt F) → (⟨S4x1x16, .f32⟩ : BufTy).Contents (Elt F)),
    reshape main_v6596 main_v6597 rfl shapeCasts_S4x1x16_S4x16,
    unary main_v6597 main_v6598 (broadcastInDim S4x1x16 ![0, 2] bcast_S4x16_S4x1x16_0_2 : (⟨S4x16, .f32⟩ : BufTy).Contents (Elt F) → (⟨S4x1x16, .f32⟩ : BufTy).Contents (Elt F)),
    unary main_v6598 main_v6599 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6595 main_v6599 main_v6600 (mulf : (⟨S4x256x16, .f32⟩ : BufTy).Contents (Elt F) → (⟨S4x256x16, .f32⟩ : BufTy).Contents (Elt F) → (⟨S4x256x16, .f32⟩ : BufTy).Contents (Elt F)),
    nullary main_cst_658 (constant S_ .f32 0x00000000#32),
    binary main_v6600 main_cst_658 main_v6601 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_659 (constantI S_ 32 329#32),
    unary main_c_659 main_v6602 (broadcastInDim S1 ![] bcast_S_S1 : (⟨S_, .i32⟩ : BufTy).Contents (Elt F) → (⟨S1, .i32⟩ : BufTy).Contents (Elt F)),
    ternary main_v6583 main_v6602 main_v6601 main_v6603 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps329_ok : (stepOps329 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step329_val (V : Valuation τ sig (Elt Ideal)) :
    after (stepOps329 (F := Ideal)) V (no_index (Proc.devRef .tc main_v6595)) = stepH 329 (by decide) (V (Proc.devRef .tc main_arg0)) (V (Proc.devRef .tc main_v3)) (V (Proc.devRef .tc main_arg2)) (V (Proc.devRef .tc main_v6575))
    ∧ after (stepOps329 (F := Ideal)) V (no_index (Proc.devRef .tc main_v6603)) = stepY 329 (by decide) (V (Proc.devRef .tc main_arg3)) (stepH 329 (by decide) (V (Proc.devRef .tc main_arg0)) (V (Proc.devRef .tc main_v3)) (V (Proc.devRef .tc main_arg2)) (V (Proc.devRef .tc main_v6575))) (V (Proc.devRef .tc main_v6583)) := by
  simp only [stepOps329]
  after_results_simp
  first | exact ⟨rfl, rfl⟩ | fail "value"
/-- Step 330 of the loop: operations 7267 … 7288 of the program. -/
abbrev stepOps330 : List (HloOp τ sig (Elt F)) :=
  [ unary main_v3 main_v6604 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6595 main_v6604 main_v6605 (mulf : (⟨S4x256x16, .f32⟩ : BufTy).Contents (Elt F) → (⟨S4x256x16, .f32⟩ : BufTy).Contents (Elt F) → (⟨S4x256x16, .f32⟩ : BufTy).Contents (Elt F)),
    unary main_arg0 main_v6606 ((extractStridedSlice S4x1x256 ![0, 330, 0] · slices_S4x512x256_S4x1x256_0_330_0) : (⟨S4x512x256, .f32⟩ : BufTy).Contents (Elt F) → (⟨S4x1x256, .f32⟩ : BufTy).Contents (Elt F)),
    reshape main_v6606 main_v6607 rfl shapeCasts_S4x1x256_S4x256,
    unary main_v6607 main_v6608 (broadcastInDim S4x256x1 ![0, 1] bcast_S4x256_S4x256x1_0_1 : (⟨S4x256, .f32⟩ : BufTy).Contents (Elt F) → (⟨S4x256x1, .f32⟩ : BufTy).Contents (Elt F)),
    unary main_arg2 main_v6609 ((extractStridedSlice S4x1x16 ![0, 330, 0] · slices_S4x512x16_S4x1x16_0_330_0) : (⟨S4x512x16, .f32⟩ : BufTy).Contents (Elt F) → (⟨S4x1x16, .f32⟩ : BufTy).Contents (Elt F)),
    reshape main_v6609 main_v6610 rfl shapeCasts_S4x1x16_S4x16,
    unary main_v6610 main_v6611 (broadcastInDim S4x1x16 ![0, 2] bcast_S4x16_S4x1x16_0_2 : (⟨S4x16, .f32⟩ : BufTy).Contents (Elt F) → (⟨S4x1x16, .f32⟩ : BufTy).Contents (Elt F)),
    unary main_v6608 main_v6612 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6611 main_v6613 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6612 main_v6613 main_v6614 (mulf : (⟨S4x256x16, .f32⟩ : BufTy).Contents (Elt F) → (⟨S4x256x16, .f32⟩ : BufTy).Contents (Elt F) → (⟨S4x256x16, .f32⟩ : BufTy).Contents (Elt F)),
    binary main_v6605 main_v6614 main_v6615 (addf : (⟨S4x256x16, .f32⟩ : BufTy).Contents (Elt F) → (⟨S4x256x16, .f32⟩ : BufTy).Contents (Elt F) → (⟨S4x256x16, .f32⟩ : BufTy).Contents (Elt F)),
    unary main_arg3 main_v6616 ((extractStridedSlice S4x1x16 ![0, 330, 0] · slices_S4x512x16_S4x1x16_0_330_0) : (⟨S4x512x16, .f32⟩ : BufTy).Contents (Elt F) → (⟨S4x1x16, .f32⟩ : BufTy).Contents (Elt F)),
    reshape main_v6616 main_v6617 rfl shapeCasts_S4x1x16_S4x16,
    unary main_v6617 main_v6618 (broadcastInDim S4x1x16 ![0, 2] bcast_S4x16_S4x1x16_0_2 : (⟨S4x16, .f32⟩ : BufTy).Contents (Elt F) → (⟨S4x1x16, .f32⟩ : BufTy).Contents (Elt F)),
    unary main_v6618 main_v6619 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6615 main_v6619 main_v6620 (mulf : (⟨S4x256x16, .f32⟩ : BufTy).Contents (Elt F) → (⟨S4x256x16, .f32⟩ : BufTy).Contents (Elt F) → (⟨S4x256x16, .f32⟩ : BufTy).Contents (Elt F)),
    nullary main_cst_660 (constant S_ .f32 0x00000000#32),
    binary main_v6620 main_cst_660 main_v6621 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_661 (constantI S_ 32 330#32),
    unary main_c_661 main_v6622 (broadcastInDim S1 ![] bcast_S_S1 : (⟨S_, .i32⟩ : BufTy).Contents (Elt F) → (⟨S1, .i32⟩ : BufTy).Contents (Elt F)),
    ternary main_v6603 main_v6622 main_v6621 main_v6623 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps330_ok : (stepOps330 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step330_val (V : Valuation τ sig (Elt Ideal)) :
    after (stepOps330 (F := Ideal)) V (no_index (Proc.devRef .tc main_v6615)) = stepH 330 (by decide) (V (Proc.devRef .tc main_arg0)) (V (Proc.devRef .tc main_v3)) (V (Proc.devRef .tc main_arg2)) (V (Proc.devRef .tc main_v6595))
    ∧ after (stepOps330 (F := Ideal)) V (no_index (Proc.devRef .tc main_v6623)) = stepY 330 (by decide) (V (Proc.devRef .tc main_arg3)) (stepH 330 (by decide) (V (Proc.devRef .tc main_arg0)) (V (Proc.devRef .tc main_v3)) (V (Proc.devRef .tc main_arg2)) (V (Proc.devRef .tc main_v6595))) (V (Proc.devRef .tc main_v6603)) := by
  simp only [stepOps330]
  after_results_simp
  first | exact ⟨rfl, rfl⟩ | fail "value"
/-- Step 331 of the loop: operations 7289 … 7310 of the program. -/
abbrev stepOps331 : List (HloOp τ sig (Elt F)) :=
  [ unary main_v3 main_v6624 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6615 main_v6624 main_v6625 (mulf : (⟨S4x256x16, .f32⟩ : BufTy).Contents (Elt F) → (⟨S4x256x16, .f32⟩ : BufTy).Contents (Elt F) → (⟨S4x256x16, .f32⟩ : BufTy).Contents (Elt F)),
    unary main_arg0 main_v6626 ((extractStridedSlice S4x1x256 ![0, 331, 0] · slices_S4x512x256_S4x1x256_0_331_0) : (⟨S4x512x256, .f32⟩ : BufTy).Contents (Elt F) → (⟨S4x1x256, .f32⟩ : BufTy).Contents (Elt F)),
    reshape main_v6626 main_v6627 rfl shapeCasts_S4x1x256_S4x256,
    unary main_v6627 main_v6628 (broadcastInDim S4x256x1 ![0, 1] bcast_S4x256_S4x256x1_0_1 : (⟨S4x256, .f32⟩ : BufTy).Contents (Elt F) → (⟨S4x256x1, .f32⟩ : BufTy).Contents (Elt F)),
    unary main_arg2 main_v6629 ((extractStridedSlice S4x1x16 ![0, 331, 0] · slices_S4x512x16_S4x1x16_0_331_0) : (⟨S4x512x16, .f32⟩ : BufTy).Contents (Elt F) → (⟨S4x1x16, .f32⟩ : BufTy).Contents (Elt F)),
    reshape main_v6629 main_v6630 rfl shapeCasts_S4x1x16_S4x16,
    unary main_v6630 main_v6631 (broadcastInDim S4x1x16 ![0, 2] bcast_S4x16_S4x1x16_0_2 : (⟨S4x16, .f32⟩ : BufTy).Contents (Elt F) → (⟨S4x1x16, .f32⟩ : BufTy).Contents (Elt F)),
    unary main_v6628 main_v6632 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6631 main_v6633 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6632 main_v6633 main_v6634 (mulf : (⟨S4x256x16, .f32⟩ : BufTy).Contents (Elt F) → (⟨S4x256x16, .f32⟩ : BufTy).Contents (Elt F) → (⟨S4x256x16, .f32⟩ : BufTy).Contents (Elt F)),
    binary main_v6625 main_v6634 main_v6635 (addf : (⟨S4x256x16, .f32⟩ : BufTy).Contents (Elt F) → (⟨S4x256x16, .f32⟩ : BufTy).Contents (Elt F) → (⟨S4x256x16, .f32⟩ : BufTy).Contents (Elt F)),
    unary main_arg3 main_v6636 ((extractStridedSlice S4x1x16 ![0, 331, 0] · slices_S4x512x16_S4x1x16_0_331_0) : (⟨S4x512x16, .f32⟩ : BufTy).Contents (Elt F) → (⟨S4x1x16, .f32⟩ : BufTy).Contents (Elt F)),
    reshape main_v6636 main_v6637 rfl shapeCasts_S4x1x16_S4x16,
    unary main_v6637 main_v6638 (broadcastInDim S4x1x16 ![0, 2] bcast_S4x16_S4x1x16_0_2 : (⟨S4x16, .f32⟩ : BufTy).Contents (Elt F) → (⟨S4x1x16, .f32⟩ : BufTy).Contents (Elt F)),
    unary main_v6638 main_v6639 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6635 main_v6639 main_v6640 (mulf : (⟨S4x256x16, .f32⟩ : BufTy).Contents (Elt F) → (⟨S4x256x16, .f32⟩ : BufTy).Contents (Elt F) → (⟨S4x256x16, .f32⟩ : BufTy).Contents (Elt F)),
    nullary main_cst_662 (constant S_ .f32 0x00000000#32),
    binary main_v6640 main_cst_662 main_v6641 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_663 (constantI S_ 32 331#32),
    unary main_c_663 main_v6642 (broadcastInDim S1 ![] bcast_S_S1 : (⟨S_, .i32⟩ : BufTy).Contents (Elt F) → (⟨S1, .i32⟩ : BufTy).Contents (Elt F)),
    ternary main_v6623 main_v6642 main_v6641 main_v6643 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps331_ok : (stepOps331 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step331_val (V : Valuation τ sig (Elt Ideal)) :
    after (stepOps331 (F := Ideal)) V (no_index (Proc.devRef .tc main_v6635)) = stepH 331 (by decide) (V (Proc.devRef .tc main_arg0)) (V (Proc.devRef .tc main_v3)) (V (Proc.devRef .tc main_arg2)) (V (Proc.devRef .tc main_v6615))
    ∧ after (stepOps331 (F := Ideal)) V (no_index (Proc.devRef .tc main_v6643)) = stepY 331 (by decide) (V (Proc.devRef .tc main_arg3)) (stepH 331 (by decide) (V (Proc.devRef .tc main_arg0)) (V (Proc.devRef .tc main_v3)) (V (Proc.devRef .tc main_arg2)) (V (Proc.devRef .tc main_v6615))) (V (Proc.devRef .tc main_v6623)) := by
  simp only [stepOps331]
  after_results_simp
  first | exact ⟨rfl, rfl⟩ | fail "value"
/-- Step 332 of the loop: operations 7311 … 7332 of the program. -/
abbrev stepOps332 : List (HloOp τ sig (Elt F)) :=
  [ unary main_v3 main_v6644 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6635 main_v6644 main_v6645 (mulf : (⟨S4x256x16, .f32⟩ : BufTy).Contents (Elt F) → (⟨S4x256x16, .f32⟩ : BufTy).Contents (Elt F) → (⟨S4x256x16, .f32⟩ : BufTy).Contents (Elt F)),
    unary main_arg0 main_v6646 ((extractStridedSlice S4x1x256 ![0, 332, 0] · slices_S4x512x256_S4x1x256_0_332_0) : (⟨S4x512x256, .f32⟩ : BufTy).Contents (Elt F) → (⟨S4x1x256, .f32⟩ : BufTy).Contents (Elt F)),
    reshape main_v6646 main_v6647 rfl shapeCasts_S4x1x256_S4x256,
    unary main_v6647 main_v6648 (broadcastInDim S4x256x1 ![0, 1] bcast_S4x256_S4x256x1_0_1 : (⟨S4x256, .f32⟩ : BufTy).Contents (Elt F) → (⟨S4x256x1, .f32⟩ : BufTy).Contents (Elt F)),
    unary main_arg2 main_v6649 ((extractStridedSlice S4x1x16 ![0, 332, 0] · slices_S4x512x16_S4x1x16_0_332_0) : (⟨S4x512x16, .f32⟩ : BufTy).Contents (Elt F) → (⟨S4x1x16, .f32⟩ : BufTy).Contents (Elt F)),
    reshape main_v6649 main_v6650 rfl shapeCasts_S4x1x16_S4x16,
    unary main_v6650 main_v6651 (broadcastInDim S4x1x16 ![0, 2] bcast_S4x16_S4x1x16_0_2 : (⟨S4x16, .f32⟩ : BufTy).Contents (Elt F) → (⟨S4x1x16, .f32⟩ : BufTy).Contents (Elt F)),
    unary main_v6648 main_v6652 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6651 main_v6653 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6652 main_v6653 main_v6654 (mulf : (⟨S4x256x16, .f32⟩ : BufTy).Contents (Elt F) → (⟨S4x256x16, .f32⟩ : BufTy).Contents (Elt F) → (⟨S4x256x16, .f32⟩ : BufTy).Contents (Elt F)),
    binary main_v6645 main_v6654 main_v6655 (addf : (⟨S4x256x16, .f32⟩ : BufTy).Contents (Elt F) → (⟨S4x256x16, .f32⟩ : BufTy).Contents (Elt F) → (⟨S4x256x16, .f32⟩ : BufTy).Contents (Elt F)),
    unary main_arg3 main_v6656 ((extractStridedSlice S4x1x16 ![0, 332, 0] · slices_S4x512x16_S4x1x16_0_332_0) : (⟨S4x512x16, .f32⟩ : BufTy).Contents (Elt F) → (⟨S4x1x16, .f32⟩ : BufTy).Contents (Elt F)),
    reshape main_v6656 main_v6657 rfl shapeCasts_S4x1x16_S4x16,
    unary main_v6657 main_v6658 (broadcastInDim S4x1x16 ![0, 2] bcast_S4x16_S4x1x16_0_2 : (⟨S4x16, .f32⟩ : BufTy).Contents (Elt F) → (⟨S4x1x16, .f32⟩ : BufTy).Contents (Elt F)),
    unary main_v6658 main_v6659 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6655 main_v6659 main_v6660 (mulf : (⟨S4x256x16, .f32⟩ : BufTy).Contents (Elt F) → (⟨S4x256x16, .f32⟩ : BufTy).Contents (Elt F) → (⟨S4x256x16, .f32⟩ : BufTy).Contents (Elt F)),
    nullary main_cst_664 (constant S_ .f32 0x00000000#32),
    binary main_v6660 main_cst_664 main_v6661 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_665 (constantI S_ 32 332#32),
    unary main_c_665 main_v6662 (broadcastInDim S1 ![] bcast_S_S1 : (⟨S_, .i32⟩ : BufTy).Contents (Elt F) → (⟨S1, .i32⟩ : BufTy).Contents (Elt F)),
    ternary main_v6643 main_v6662 main_v6661 main_v6663 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps332_ok : (stepOps332 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step332_val (V : Valuation τ sig (Elt Ideal)) :
    after (stepOps332 (F := Ideal)) V (no_index (Proc.devRef .tc main_v6655)) = stepH 332 (by decide) (V (Proc.devRef .tc main_arg0)) (V (Proc.devRef .tc main_v3)) (V (Proc.devRef .tc main_arg2)) (V (Proc.devRef .tc main_v6635))
    ∧ after (stepOps332 (F := Ideal)) V (no_index (Proc.devRef .tc main_v6663)) = stepY 332 (by decide) (V (Proc.devRef .tc main_arg3)) (stepH 332 (by decide) (V (Proc.devRef .tc main_arg0)) (V (Proc.devRef .tc main_v3)) (V (Proc.devRef .tc main_arg2)) (V (Proc.devRef .tc main_v6635))) (V (Proc.devRef .tc main_v6643)) := by
  simp only [stepOps332]
  after_results_simp
  first | exact ⟨rfl, rfl⟩ | fail "value"
/-- Step 333 of the loop: operations 7333 … 7354 of the program. -/
abbrev stepOps333 : List (HloOp τ sig (Elt F)) :=
  [ unary main_v3 main_v6664 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6655 main_v6664 main_v6665 (mulf : (⟨S4x256x16, .f32⟩ : BufTy).Contents (Elt F) → (⟨S4x256x16, .f32⟩ : BufTy).Contents (Elt F) → (⟨S4x256x16, .f32⟩ : BufTy).Contents (Elt F)),
    unary main_arg0 main_v6666 ((extractStridedSlice S4x1x256 ![0, 333, 0] · slices_S4x512x256_S4x1x256_0_333_0) : (⟨S4x512x256, .f32⟩ : BufTy).Contents (Elt F) → (⟨S4x1x256, .f32⟩ : BufTy).Contents (Elt F)),
    reshape main_v6666 main_v6667 rfl shapeCasts_S4x1x256_S4x256,
    unary main_v6667 main_v6668 (broadcastInDim S4x256x1 ![0, 1] bcast_S4x256_S4x256x1_0_1 : (⟨S4x256, .f32⟩ : BufTy).Contents (Elt F) → (⟨S4x256x1, .f32⟩ : BufTy).Contents (Elt F)),
    unary main_arg2 main_v6669 ((extractStridedSlice S4x1x16 ![0, 333, 0] · slices_S4x512x16_S4x1x16_0_333_0) : (⟨S4x512x16, .f32⟩ : BufTy).Contents (Elt F) → (⟨S4x1x16, .f32⟩ : BufTy).Contents (Elt F)),
    reshape main_v6669 main_v6670 rfl shapeCasts_S4x1x16_S4x16,
    unary main_v6670 main_v6671 (broadcastInDim S4x1x16 ![0, 2] bcast_S4x16_S4x1x16_0_2 : (⟨S4x16, .f32⟩ : BufTy).Contents (Elt F) → (⟨S4x1x16, .f32⟩ : BufTy).Contents (Elt F)),
    unary main_v6668 main_v6672 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6671 main_v6673 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6672 main_v6673 main_v6674 (mulf : (⟨S4x256x16, .f32⟩ : BufTy).Contents (Elt F) → (⟨S4x256x16, .f32⟩ : BufTy).Contents (Elt F) → (⟨S4x256x16, .f32⟩ : BufTy).Contents (Elt F)),
    binary main_v6665 main_v6674 main_v6675 (addf : (⟨S4x256x16, .f32⟩ : BufTy).Contents (Elt F) → (⟨S4x256x16, .f32⟩ : BufTy).Contents (Elt F) → (⟨S4x256x16, .f32⟩ : BufTy).Contents (Elt F)),
    unary main_arg3 main_v6676 ((extractStridedSlice S4x1x16 ![0, 333, 0] · slices_S4x512x16_S4x1x16_0_333_0) : (⟨S4x512x16, .f32⟩ : BufTy).Contents (Elt F) → (⟨S4x1x16, .f32⟩ : BufTy).Contents (Elt F)),
    reshape main_v6676 main_v6677 rfl shapeCasts_S4x1x16_S4x16,
    unary main_v6677 main_v6678 (broadcastInDim S4x1x16 ![0, 2] bcast_S4x16_S4x1x16_0_2 : (⟨S4x16, .f32⟩ : BufTy).Contents (Elt F) → (⟨S4x1x16, .f32⟩ : BufTy).Contents (Elt F)),
    unary main_v6678 main_v6679 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6675 main_v6679 main_v6680 (mulf : (⟨S4x256x16, .f32⟩ : BufTy).Contents (Elt F) → (⟨S4x256x16, .f32⟩ : BufTy).Contents (Elt F) → (⟨S4x256x16, .f32⟩ : BufTy).Contents (Elt F)),
    nullary main_cst_666 (constant S_ .f32 0x00000000#32),
    binary main_v6680 main_cst_666 main_v6681 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_667 (constantI S_ 32 333#32),
    unary main_c_667 main_v6682 (broadcastInDim S1 ![] bcast_S_S1 : (⟨S_, .i32⟩ : BufTy).Contents (Elt F) → (⟨S1, .i32⟩ : BufTy).Contents (Elt F)),
    ternary main_v6663 main_v6682 main_v6681 main_v6683 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps333_ok : (stepOps333 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step333_val (V : Valuation τ sig (Elt Ideal)) :
    after (stepOps333 (F := Ideal)) V (no_index (Proc.devRef .tc main_v6675)) = stepH 333 (by decide) (V (Proc.devRef .tc main_arg0)) (V (Proc.devRef .tc main_v3)) (V (Proc.devRef .tc main_arg2)) (V (Proc.devRef .tc main_v6655))
    ∧ after (stepOps333 (F := Ideal)) V (no_index (Proc.devRef .tc main_v6683)) = stepY 333 (by decide) (V (Proc.devRef .tc main_arg3)) (stepH 333 (by decide) (V (Proc.devRef .tc main_arg0)) (V (Proc.devRef .tc main_v3)) (V (Proc.devRef .tc main_arg2)) (V (Proc.devRef .tc main_v6655))) (V (Proc.devRef .tc main_v6663)) := by
  simp only [stepOps333]
  after_results_simp
  first | exact ⟨rfl, rfl⟩ | fail "value"
/-- Step 334 of the loop: operations 7355 … 7376 of the program. -/
abbrev stepOps334 : List (HloOp τ sig (Elt F)) :=
  [ unary main_v3 main_v6684 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6675 main_v6684 main_v6685 (mulf : (⟨S4x256x16, .f32⟩ : BufTy).Contents (Elt F) → (⟨S4x256x16, .f32⟩ : BufTy).Contents (Elt F) → (⟨S4x256x16, .f32⟩ : BufTy).Contents (Elt F)),
    unary main_arg0 main_v6686 ((extractStridedSlice S4x1x256 ![0, 334, 0] · slices_S4x512x256_S4x1x256_0_334_0) : (⟨S4x512x256, .f32⟩ : BufTy).Contents (Elt F) → (⟨S4x1x256, .f32⟩ : BufTy).Contents (Elt F)),
    reshape main_v6686 main_v6687 rfl shapeCasts_S4x1x256_S4x256,
    unary main_v6687 main_v6688 (broadcastInDim S4x256x1 ![0, 1] bcast_S4x256_S4x256x1_0_1 : (⟨S4x256, .f32⟩ : BufTy).Contents (Elt F) → (⟨S4x256x1, .f32⟩ : BufTy).Contents (Elt F)),
    unary main_arg2 main_v6689 ((extractStridedSlice S4x1x16 ![0, 334, 0] · slices_S4x512x16_S4x1x16_0_334_0) : (⟨S4x512x16, .f32⟩ : BufTy).Contents (Elt F) → (⟨S4x1x16, .f32⟩ : BufTy).Contents (Elt F)),
    reshape main_v6689 main_v6690 rfl shapeCasts_S4x1x16_S4x16,
    unary main_v6690 main_v6691 (broadcastInDim S4x1x16 ![0, 2] bcast_S4x16_S4x1x16_0_2 : (⟨S4x16, .f32⟩ : BufTy).Contents (Elt F) → (⟨S4x1x16, .f32⟩ : BufTy).Contents (Elt F)),
    unary main_v6688 main_v6692 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6691 main_v6693 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6692 main_v6693 main_v6694 (mulf : (⟨S4x256x16, .f32⟩ : BufTy).Contents (Elt F) → (⟨S4x256x16, .f32⟩ : BufTy).Contents (Elt F) → (⟨S4x256x16, .f32⟩ : BufTy).Contents (Elt F)),
    binary main_v6685 main_v6694 main_v6695 (addf : (⟨S4x256x16, .f32⟩ : BufTy).Contents (Elt F) → (⟨S4x256x16, .f32⟩ : BufTy).Contents (Elt F) → (⟨S4x256x16, .f32⟩ : BufTy).Contents (Elt F)),
    unary main_arg3 main_v6696 ((extractStridedSlice S4x1x16 ![0, 334, 0] · slices_S4x512x16_S4x1x16_0_334_0) : (⟨S4x512x16, .f32⟩ : BufTy).Contents (Elt F) → (⟨S4x1x16, .f32⟩ : BufTy).Contents (Elt F)),
    reshape main_v6696 main_v6697 rfl shapeCasts_S4x1x16_S4x16,
    unary main_v6697 main_v6698 (broadcastInDim S4x1x16 ![0, 2] bcast_S4x16_S4x1x16_0_2 : (⟨S4x16, .f32⟩ : BufTy).Contents (Elt F) → (⟨S4x1x16, .f32⟩ : BufTy).Contents (Elt F)),
    unary main_v6698 main_v6699 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6695 main_v6699 main_v6700 (mulf : (⟨S4x256x16, .f32⟩ : BufTy).Contents (Elt F) → (⟨S4x256x16, .f32⟩ : BufTy).Contents (Elt F) → (⟨S4x256x16, .f32⟩ : BufTy).Contents (Elt F)),
    nullary main_cst_668 (constant S_ .f32 0x00000000#32),
    binary main_v6700 main_cst_668 main_v6701 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_669 (constantI S_ 32 334#32),
    unary main_c_669 main_v6702 (broadcastInDim S1 ![] bcast_S_S1 : (⟨S_, .i32⟩ : BufTy).Contents (Elt F) → (⟨S1, .i32⟩ : BufTy).Contents (Elt F)),
    ternary main_v6683 main_v6702 main_v6701 main_v6703 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps334_ok : (stepOps334 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step334_val (V : Valuation τ sig (Elt Ideal)) :
    after (stepOps334 (F := Ideal)) V (no_index (Proc.devRef .tc main_v6695)) = stepH 334 (by decide) (V (Proc.devRef .tc main_arg0)) (V (Proc.devRef .tc main_v3)) (V (Proc.devRef .tc main_arg2)) (V (Proc.devRef .tc main_v6675))
    ∧ after (stepOps334 (F := Ideal)) V (no_index (Proc.devRef .tc main_v6703)) = stepY 334 (by decide) (V (Proc.devRef .tc main_arg3)) (stepH 334 (by decide) (V (Proc.devRef .tc main_arg0)) (V (Proc.devRef .tc main_v3)) (V (Proc.devRef .tc main_arg2)) (V (Proc.devRef .tc main_v6675))) (V (Proc.devRef .tc main_v6683)) := by
  simp only [stepOps334]
  after_results_simp
  first | exact ⟨rfl, rfl⟩ | fail "value"
/-- Step 335 of the loop: operations 7377 … 7398 of the program. -/
abbrev stepOps335 : List (HloOp τ sig (Elt F)) :=
  [ unary main_v3 main_v6704 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6695 main_v6704 main_v6705 (mulf : (⟨S4x256x16, .f32⟩ : BufTy).Contents (Elt F) → (⟨S4x256x16, .f32⟩ : BufTy).Contents (Elt F) → (⟨S4x256x16, .f32⟩ : BufTy).Contents (Elt F)),
    unary main_arg0 main_v6706 ((extractStridedSlice S4x1x256 ![0, 335, 0] · slices_S4x512x256_S4x1x256_0_335_0) : (⟨S4x512x256, .f32⟩ : BufTy).Contents (Elt F) → (⟨S4x1x256, .f32⟩ : BufTy).Contents (Elt F)),
    reshape main_v6706 main_v6707 rfl shapeCasts_S4x1x256_S4x256,
    unary main_v6707 main_v6708 (broadcastInDim S4x256x1 ![0, 1] bcast_S4x256_S4x256x1_0_1 : (⟨S4x256, .f32⟩ : BufTy).Contents (Elt F) → (⟨S4x256x1, .f32⟩ : BufTy).Contents (Elt F)),
    unary main_arg2 main_v6709 ((extractStridedSlice S4x1x16 ![0, 335, 0] · slices_S4x512x16_S4x1x16_0_335_0) : (⟨S4x512x16, .f32⟩ : BufTy).Contents (Elt F) → (⟨S4x1x16, .f32⟩ : BufTy).Contents (Elt F)),
    reshape main_v6709 main_v6710 rfl shapeCasts_S4x1x16_S4x16,
    unary main_v6710 main_v6711 (broadcastInDim S4x1x16 ![0, 2] bcast_S4x16_S4x1x16_0_2 : (⟨S4x16, .f32⟩ : BufTy).Contents (Elt F) → (⟨S4x1x16, .f32⟩ : BufTy).Contents (Elt F)),
    unary main_v6708 main_v6712 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6711 main_v6713 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6712 main_v6713 main_v6714 (mulf : (⟨S4x256x16, .f32⟩ : BufTy).Contents (Elt F) → (⟨S4x256x16, .f32⟩ : BufTy).Contents (Elt F) → (⟨S4x256x16, .f32⟩ : BufTy).Contents (Elt F)),
    binary main_v6705 main_v6714 main_v6715 (addf : (⟨S4x256x16, .f32⟩ : BufTy).Contents (Elt F) → (⟨S4x256x16, .f32⟩ : BufTy).Contents (Elt F) → (⟨S4x256x16, .f32⟩ : BufTy).Contents (Elt F)),
    unary main_arg3 main_v6716 ((extractStridedSlice S4x1x16 ![0, 335, 0] · slices_S4x512x16_S4x1x16_0_335_0) : (⟨S4x512x16, .f32⟩ : BufTy).Contents (Elt F) → (⟨S4x1x16, .f32⟩ : BufTy).Contents (Elt F)),
    reshape main_v6716 main_v6717 rfl shapeCasts_S4x1x16_S4x16,
    unary main_v6717 main_v6718 (broadcastInDim S4x1x16 ![0, 2] bcast_S4x16_S4x1x16_0_2 : (⟨S4x16, .f32⟩ : BufTy).Contents (Elt F) → (⟨S4x1x16, .f32⟩ : BufTy).Contents (Elt F)),
    unary main_v6718 main_v6719 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6715 main_v6719 main_v6720 (mulf : (⟨S4x256x16, .f32⟩ : BufTy).Contents (Elt F) → (⟨S4x256x16, .f32⟩ : BufTy).Contents (Elt F) → (⟨S4x256x16, .f32⟩ : BufTy).Contents (Elt F)),
    nullary main_cst_670 (constant S_ .f32 0x00000000#32),
    binary main_v6720 main_cst_670 main_v6721 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_671 (constantI S_ 32 335#32),
    unary main_c_671 main_v6722 (broadcastInDim S1 ![] bcast_S_S1 : (⟨S_, .i32⟩ : BufTy).Contents (Elt F) → (⟨S1, .i32⟩ : BufTy).Contents (Elt F)),
    ternary main_v6703 main_v6722 main_v6721 main_v6723 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps335_ok : (stepOps335 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step335_val (V : Valuation τ sig (Elt Ideal)) :
    after (stepOps335 (F := Ideal)) V (no_index (Proc.devRef .tc main_v6715)) = stepH 335 (by decide) (V (Proc.devRef .tc main_arg0)) (V (Proc.devRef .tc main_v3)) (V (Proc.devRef .tc main_arg2)) (V (Proc.devRef .tc main_v6695))
    ∧ after (stepOps335 (F := Ideal)) V (no_index (Proc.devRef .tc main_v6723)) = stepY 335 (by decide) (V (Proc.devRef .tc main_arg3)) (stepH 335 (by decide) (V (Proc.devRef .tc main_arg0)) (V (Proc.devRef .tc main_v3)) (V (Proc.devRef .tc main_arg2)) (V (Proc.devRef .tc main_v6695))) (V (Proc.devRef .tc main_v6703)) := by
  simp only [stepOps335]
  after_results_simp
  first | exact ⟨rfl, rfl⟩ | fail "value"

end Cert.ReferenceIdeal.RefRun

end
-- ==== Proof.RefTableStep21.lean ====
/-
  Steps 336 … 351 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 336 of the loop: operations 7399 … 7420 of the program. -/
abbrev stepOps336 : List (HloOp τ sig (Elt F)) :=
  [ unary main_v3 main_v6724 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6715 main_v6724 main_v6725 (mulf : (⟨S4x256x16, .f32⟩ : BufTy).Contents (Elt F) → (⟨S4x256x16, .f32⟩ : BufTy).Contents (Elt F) → (⟨S4x256x16, .f32⟩ : BufTy).Contents (Elt F)),
    unary main_arg0 main_v6726 ((extractStridedSlice S4x1x256 ![0, 336, 0] · slices_S4x512x256_S4x1x256_0_336_0) : (⟨S4x512x256, .f32⟩ : BufTy).Contents (Elt F) → (⟨S4x1x256, .f32⟩ : BufTy).Contents (Elt F)),
    reshape main_v6726 main_v6727 rfl shapeCasts_S4x1x256_S4x256,
    unary main_v6727 main_v6728 (broadcastInDim S4x256x1 ![0, 1] bcast_S4x256_S4x256x1_0_1 : (⟨S4x256, .f32⟩ : BufTy).Contents (Elt F) → (⟨S4x256x1, .f32⟩ : BufTy).Contents (Elt F)),
    unary main_arg2 main_v6729 ((extractStridedSlice S4x1x16 ![0, 336, 0] · slices_S4x512x16_S4x1x16_0_336_0) : (⟨S4x512x16, .f32⟩ : BufTy).Contents (Elt F) → (⟨S4x1x16, .f32⟩ : BufTy).Contents (Elt F)),
    reshape main_v6729 main_v6730 rfl shapeCasts_S4x1x16_S4x16,
    unary main_v6730 main_v6731 (broadcastInDim S4x1x16 ![0, 2] bcast_S4x16_S4x1x16_0_2 : (⟨S4x16, .f32⟩ : BufTy).Contents (Elt F) → (⟨S4x1x16, .f32⟩ : BufTy).Contents (Elt F)),
    unary main_v6728 main_v6732 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6731 main_v6733 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6732 main_v6733 main_v6734 (mulf : (⟨S4x256x16, .f32⟩ : BufTy).Contents (Elt F) → (⟨S4x256x16, .f32⟩ : BufTy).Contents (Elt F) → (⟨S4x256x16, .f32⟩ : BufTy).Contents (Elt F)),
    binary main_v6725 main_v6734 main_v6735 (addf : (⟨S4x256x16, .f32⟩ : BufTy).Contents (Elt F) → (⟨S4x256x16, .f32⟩ : BufTy).Contents (Elt F) → (⟨S4x256x16, .f32⟩ : BufTy).Contents (Elt F)),
    unary main_arg3 main_v6736 ((extractStridedSlice S4x1x16 ![0, 336, 0] · slices_S4x512x16_S4x1x16_0_336_0) : (⟨S4x512x16, .f32⟩ : BufTy).Contents (Elt F) → (⟨S4x1x16, .f32⟩ : BufTy).Contents (Elt F)),
    reshape main_v6736 main_v6737 rfl shapeCasts_S4x1x16_S4x16,
    unary main_v6737 main_v6738 (broadcastInDim S4x1x16 ![0, 2] bcast_S4x16_S4x1x16_0_2 : (⟨S4x16, .f32⟩ : BufTy).Contents (Elt F) → (⟨S4x1x16, .f32⟩ : BufTy).Contents (Elt F)),
    unary main_v6738 main_v6739 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6735 main_v6739 main_v6740 (mulf : (⟨S4x256x16, .f32⟩ : BufTy).Contents (Elt F) → (⟨S4x256x16, .f32⟩ : BufTy).Contents (Elt F) → (⟨S4x256x16, .f32⟩ : BufTy).Contents (Elt F)),
    nullary main_cst_672 (constant S_ .f32 0x00000000#32),
    binary main_v6740 main_cst_672 main_v6741 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_673 (constantI S_ 32 336#32),
    unary main_c_673 main_v6742 (broadcastInDim S1 ![] bcast_S_S1 : (⟨S_, .i32⟩ : BufTy).Contents (Elt F) → (⟨S1, .i32⟩ : BufTy).Contents (Elt F)),
    ternary main_v6723 main_v6742 main_v6741 main_v6743 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps336_ok : (stepOps336 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step336_val (V : Valuation τ sig (Elt Ideal)) :
    after (stepOps336 (F := Ideal)) V (no_index (Proc.devRef .tc main_v6735)) = stepH 336 (by decide) (V (Proc.devRef .tc main_arg0)) (V (Proc.devRef .tc main_v3)) (V (Proc.devRef .tc main_arg2)) (V (Proc.devRef .tc main_v6715))
    ∧ after (stepOps336 (F := Ideal)) V (no_index (Proc.devRef .tc main_v6743)) = stepY 336 (by decide) (V (Proc.devRef .tc main_arg3)) (stepH 336 (by decide) (V (Proc.devRef .tc main_arg0)) (V (Proc.devRef .tc main_v3)) (V (Proc.devRef .tc main_arg2)) (V (Proc.devRef .tc main_v6715))) (V (Proc.devRef .tc main_v6723)) := by
  simp only [stepOps336]
  after_results_simp
  first | exact ⟨rfl, rfl⟩ | fail "value"
/-- Step 337 of the loop: operations 7421 … 7442 of the program. -/
abbrev stepOps337 : List (HloOp τ sig (Elt F)) :=
  [ unary main_v3 main_v6744 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6735 main_v6744 main_v6745 (mulf : (⟨S4x256x16, .f32⟩ : BufTy).Contents (Elt F) → (⟨S4x256x16, .f32⟩ : BufTy).Contents (Elt F) → (⟨S4x256x16, .f32⟩ : BufTy).Contents (Elt F)),
    unary main_arg0 main_v6746 ((extractStridedSlice S4x1x256 ![0, 337, 0] · slices_S4x512x256_S4x1x256_0_337_0) : (⟨S4x512x256, .f32⟩ : BufTy).Contents (Elt F) → (⟨S4x1x256, .f32⟩ : BufTy).Contents (Elt F)),
    reshape main_v6746 main_v6747 rfl shapeCasts_S4x1x256_S4x256,
    unary main_v6747 main_v6748 (broadcastInDim S4x256x1 ![0, 1] bcast_S4x256_S4x256x1_0_1 : (⟨S4x256, .f32⟩ : BufTy).Contents (Elt F) → (⟨S4x256x1, .f32⟩ : BufTy).Contents (Elt F)),
    unary main_arg2 main_v6749 ((extractStridedSlice S4x1x16 ![0, 337, 0] · slices_S4x512x16_S4x1x16_0_337_0) : (⟨S4x512x16, .f32⟩ : BufTy).Contents (Elt F) → (⟨S4x1x16, .f32⟩ : BufTy).Contents (Elt F)),
    reshape main_v6749 main_v6750 rfl shapeCasts_S4x1x16_S4x16,
    unary main_v6750 main_v6751 (broadcastInDim S4x1x16 ![0, 2] bcast_S4x16_S4x1x16_0_2 : (⟨S4x16, .f32⟩ : BufTy).Contents (Elt F) → (⟨S4x1x16, .f32⟩ : BufTy).Contents (Elt F)),
    unary main_v6748 main_v6752 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6751 main_v6753 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6752 main_v6753 main_v6754 (mulf : (⟨S4x256x16, .f32⟩ : BufTy).Contents (Elt F) → (⟨S4x256x16, .f32⟩ : BufTy).Contents (Elt F) → (⟨S4x256x16, .f32⟩ : BufTy).Contents (Elt F)),
    binary main_v6745 main_v6754 main_v6755 (addf : (⟨S4x256x16, .f32⟩ : BufTy).Contents (Elt F) → (⟨S4x256x16, .f32⟩ : BufTy).Contents (Elt F) → (⟨S4x256x16, .f32⟩ : BufTy).Contents (Elt F)),
    unary main_arg3 main_v6756 ((extractStridedSlice S4x1x16 ![0, 337, 0] · slices_S4x512x16_S4x1x16_0_337_0) : (⟨S4x512x16, .f32⟩ : BufTy).Contents (Elt F) → (⟨S4x1x16, .f32⟩ : BufTy).Contents (Elt F)),
    reshape main_v6756 main_v6757 rfl shapeCasts_S4x1x16_S4x16,
    unary main_v6757 main_v6758 (broadcastInDim S4x1x16 ![0, 2] bcast_S4x16_S4x1x16_0_2 : (⟨S4x16, .f32⟩ : BufTy).Contents (Elt F) → (⟨S4x1x16, .f32⟩ : BufTy).Contents (Elt F)),
    unary main_v6758 main_v6759 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6755 main_v6759 main_v6760 (mulf : (⟨S4x256x16, .f32⟩ : BufTy).Contents (Elt F) → (⟨S4x256x16, .f32⟩ : BufTy).Contents (Elt F) → (⟨S4x256x16, .f32⟩ : BufTy).Contents (Elt F)),
    nullary main_cst_674 (constant S_ .f32 0x00000000#32),
    binary main_v6760 main_cst_674 main_v6761 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_675 (constantI S_ 32 337#32),
    unary main_c_675 main_v6762 (broadcastInDim S1 ![] bcast_S_S1 : (⟨S_, .i32⟩ : BufTy).Contents (Elt F) → (⟨S1, .i32⟩ : BufTy).Contents (Elt F)),
    ternary main_v6743 main_v6762 main_v6761 main_v6763 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps337_ok : (stepOps337 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step337_val (V : Valuation τ sig (Elt Ideal)) :
    after (stepOps337 (F := Ideal)) V (no_index (Proc.devRef .tc main_v6755)) = stepH 337 (by decide) (V (Proc.devRef .tc main_arg0)) (V (Proc.devRef .tc main_v3)) (V (Proc.devRef .tc main_arg2)) (V (Proc.devRef .tc main_v6735))
    ∧ after (stepOps337 (F := Ideal)) V (no_index (Proc.devRef .tc main_v6763)) = stepY 337 (by decide) (V (Proc.devRef .tc main_arg3)) (stepH 337 (by decide) (V (Proc.devRef .tc main_arg0)) (V (Proc.devRef .tc main_v3)) (V (Proc.devRef .tc main_arg2)) (V (Proc.devRef .tc main_v6735))) (V (Proc.devRef .tc main_v6743)) := by
  simp only [stepOps337]
  after_results_simp
  first | exact ⟨rfl, rfl⟩ | fail "value"
/-- Step 338 of the loop: operations 7443 … 7464 of the program. -/
abbrev stepOps338 : List (HloOp τ sig (Elt F)) :=
  [ unary main_v3 main_v6764 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6755 main_v6764 main_v6765 (mulf : (⟨S4x256x16, .f32⟩ : BufTy).Contents (Elt F) → (⟨S4x256x16, .f32⟩ : BufTy).Contents (Elt F) → (⟨S4x256x16, .f32⟩ : BufTy).Contents (Elt F)),
    unary main_arg0 main_v6766 ((extractStridedSlice S4x1x256 ![0, 338, 0] · slices_S4x512x256_S4x1x256_0_338_0) : (⟨S4x512x256, .f32⟩ : BufTy).Contents (Elt F) → (⟨S4x1x256, .f32⟩ : BufTy).Contents (Elt F)),
    reshape main_v6766 main_v6767 rfl shapeCasts_S4x1x256_S4x256,
    unary main_v6767 main_v6768 (broadcastInDim S4x256x1 ![0, 1] bcast_S4x256_S4x256x1_0_1 : (⟨S4x256, .f32⟩ : BufTy).Contents (Elt F) → (⟨S4x256x1, .f32⟩ : BufTy).Contents (Elt F)),
    unary main_arg2 main_v6769 ((extractStridedSlice S4x1x16 ![0, 338, 0] · slices_S4x512x16_S4x1x16_0_338_0) : (⟨S4x512x16, .f32⟩ : BufTy).Contents (Elt F) → (⟨S4x1x16, .f32⟩ : BufTy).Contents (Elt F)),
    reshape main_v6769 main_v6770 rfl shapeCasts_S4x1x16_S4x16,
    unary main_v6770 main_v6771 (broadcastInDim S4x1x16 ![0, 2] bcast_S4x16_S4x1x16_0_2 : (⟨S4x16, .f32⟩ : BufTy).Contents (Elt F) → (⟨S4x1x16, .f32⟩ : BufTy).Contents (Elt F)),
    unary main_v6768 main_v6772 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6771 main_v6773 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6772 main_v6773 main_v6774 (mulf : (⟨S4x256x16, .f32⟩ : BufTy).Contents (Elt F) → (⟨S4x256x16, .f32⟩ : BufTy).Contents (Elt F) → (⟨S4x256x16, .f32⟩ : BufTy).Contents (Elt F)),
    binary main_v6765 main_v6774 main_v6775 (addf : (⟨S4x256x16, .f32⟩ : BufTy).Contents (Elt F) → (⟨S4x256x16, .f32⟩ : BufTy).Contents (Elt F) → (⟨S4x256x16, .f32⟩ : BufTy).Contents (Elt F)),
    unary main_arg3 main_v6776 ((extractStridedSlice S4x1x16 ![0, 338, 0] · slices_S4x512x16_S4x1x16_0_338_0) : (⟨S4x512x16, .f32⟩ : BufTy).Contents (Elt F) → (⟨S4x1x16, .f32⟩ : BufTy).Contents (Elt F)),
    reshape main_v6776 main_v6777 rfl shapeCasts_S4x1x16_S4x16,
    unary main_v6777 main_v6778 (broadcastInDim S4x1x16 ![0, 2] bcast_S4x16_S4x1x16_0_2 : (⟨S4x16, .f32⟩ : BufTy).Contents (Elt F) → (⟨S4x1x16, .f32⟩ : BufTy).Contents (Elt F)),
    unary main_v6778 main_v6779 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6775 main_v6779 main_v6780 (mulf : (⟨S4x256x16, .f32⟩ : BufTy).Contents (Elt F) → (⟨S4x256x16, .f32⟩ : BufTy).Contents (Elt F) → (⟨S4x256x16, .f32⟩ : BufTy).Contents (Elt F)),
    nullary main_cst_676 (constant S_ .f32 0x00000000#32),
    binary main_v6780 main_cst_676 main_v6781 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_677 (constantI S_ 32 338#32),
    unary main_c_677 main_v6782 (broadcastInDim S1 ![] bcast_S_S1 : (⟨S_, .i32⟩ : BufTy).Contents (Elt F) → (⟨S1, .i32⟩ : BufTy).Contents (Elt F)),
    ternary main_v6763 main_v6782 main_v6781 main_v6783 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps338_ok : (stepOps338 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step338_val (V : Valuation τ sig (Elt Ideal)) :
    after (stepOps338 (F := Ideal)) V (no_index (Proc.devRef .tc main_v6775)) = stepH 338 (by decide) (V (Proc.devRef .tc main_arg0)) (V (Proc.devRef .tc main_v3)) (V (Proc.devRef .tc main_arg2)) (V (Proc.devRef .tc main_v6755))
    ∧ after (stepOps338 (F := Ideal)) V (no_index (Proc.devRef .tc main_v6783)) = stepY 338 (by decide) (V (Proc.devRef .tc main_arg3)) (stepH 338 (by decide) (V (Proc.devRef .tc main_arg0)) (V (Proc.devRef .tc main_v3)) (V (Proc.devRef .tc main_arg2)) (V (Proc.devRef .tc main_v6755))) (V (Proc.devRef .tc main_v6763)) := by
  simp only [stepOps338]
  after_results_simp
  first | exact ⟨rfl, rfl⟩ | fail "value"
/-- Step 339 of the loop: operations 7465 … 7486 of the program. -/
abbrev stepOps339 : List (HloOp τ sig (Elt F)) :=
  [ unary main_v3 main_v6784 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6775 main_v6784 main_v6785 (mulf : (⟨S4x256x16, .f32⟩ : BufTy).Contents (Elt F) → (⟨S4x256x16, .f32⟩ : BufTy).Contents (Elt F) → (⟨S4x256x16, .f32⟩ : BufTy).Contents (Elt F)),
    unary main_arg0 main_v6786 ((extractStridedSlice S4x1x256 ![0, 339, 0] · slices_S4x512x256_S4x1x256_0_339_0) : (⟨S4x512x256, .f32⟩ : BufTy).Contents (Elt F) → (⟨S4x1x256, .f32⟩ : BufTy).Contents (Elt F)),
    reshape main_v6786 main_v6787 rfl shapeCasts_S4x1x256_S4x256,
    unary main_v6787 main_v6788 (broadcastInDim S4x256x1 ![0, 1] bcast_S4x256_S4x256x1_0_1 : (⟨S4x256, .f32⟩ : BufTy).Contents (Elt F) → (⟨S4x256x1, .f32⟩ : BufTy).Contents (Elt F)),
    unary main_arg2 main_v6789 ((extractStridedSlice S4x1x16 ![0, 339, 0] · slices_S4x512x16_S4x1x16_0_339_0) : (⟨S4x512x16, .f32⟩ : BufTy).Contents (Elt F) → (⟨S4x1x16, .f32⟩ : BufTy).Contents (Elt F)),
    reshape main_v6789 main_v6790 rfl shapeCasts_S4x1x16_S4x16,
    unary main_v6790 main_v6791 (broadcastInDim S4x1x16 ![0, 2] bcast_S4x16_S4x1x16_0_2 : (⟨S4x16, .f32⟩ : BufTy).Contents (Elt F) → (⟨S4x1x16, .f32⟩ : BufTy).Contents (Elt F)),
    unary main_v6788 main_v6792 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6791 main_v6793 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6792 main_v6793 main_v6794 (mulf : (⟨S4x256x16, .f32⟩ : BufTy).Contents (Elt F) → (⟨S4x256x16, .f32⟩ : BufTy).Contents (Elt F) → (⟨S4x256x16, .f32⟩ : BufTy).Contents (Elt F)),
    binary main_v6785 main_v6794 main_v6795 (addf : (⟨S4x256x16, .f32⟩ : BufTy).Contents (Elt F) → (⟨S4x256x16, .f32⟩ : BufTy).Contents (Elt F) → (⟨S4x256x16, .f32⟩ : BufTy).Contents (Elt F)),
    unary main_arg3 main_v6796 ((extractStridedSlice S4x1x16 ![0, 339, 0] · slices_S4x512x16_S4x1x16_0_339_0) : (⟨S4x512x16, .f32⟩ : BufTy).Contents (Elt F) → (⟨S4x1x16, .f32⟩ : BufTy).Contents (Elt F)),
    reshape main_v6796 main_v6797 rfl shapeCasts_S4x1x16_S4x16,
    unary main_v6797 main_v6798 (broadcastInDim S4x1x16 ![0, 2] bcast_S4x16_S4x1x16_0_2 : (⟨S4x16, .f32⟩ : BufTy).Contents (Elt F) → (⟨S4x1x16, .f32⟩ : BufTy).Contents (Elt F)),
    unary main_v6798 main_v6799 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6795 main_v6799 main_v6800 (mulf : (⟨S4x256x16, .f32⟩ : BufTy).Contents (Elt F) → (⟨S4x256x16, .f32⟩ : BufTy).Contents (Elt F) → (⟨S4x256x16, .f32⟩ : BufTy).Contents (Elt F)),
    nullary main_cst_678 (constant S_ .f32 0x00000000#32),
    binary main_v6800 main_cst_678 main_v6801 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_679 (constantI S_ 32 339#32),
    unary main_c_679 main_v6802 (broadcastInDim S1 ![] bcast_S_S1 : (⟨S_, .i32⟩ : BufTy).Contents (Elt F) → (⟨S1, .i32⟩ : BufTy).Contents (Elt F)),
    ternary main_v6783 main_v6802 main_v6801 main_v6803 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps339_ok : (stepOps339 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step339_val (V : Valuation τ sig (Elt Ideal)) :
    after (stepOps339 (F := Ideal)) V (no_index (Proc.devRef .tc main_v6795)) = stepH 339 (by decide) (V (Proc.devRef .tc main_arg0)) (V (Proc.devRef .tc main_v3)) (V (Proc.devRef .tc main_arg2)) (V (Proc.devRef .tc main_v6775))
    ∧ after (stepOps339 (F := Ideal)) V (no_index (Proc.devRef .tc main_v6803)) = stepY 339 (by decide) (V (Proc.devRef .tc main_arg3)) (stepH 339 (by decide) (V (Proc.devRef .tc main_arg0)) (V (Proc.devRef .tc main_v3)) (V (Proc.devRef .tc main_arg2)) (V (Proc.devRef .tc main_v6775))) (V (Proc.devRef .tc main_v6783)) := by
  simp only [stepOps339]
  after_results_simp
  first | exact ⟨rfl, rfl⟩ | fail "value"
/-- Step 340 of the loop: operations 7487 … 7508 of the program. -/
abbrev stepOps340 : List (HloOp τ sig (Elt F)) :=
  [ unary main_v3 main_v6804 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6795 main_v6804 main_v6805 (mulf : (⟨S4x256x16, .f32⟩ : BufTy).Contents (Elt F) → (⟨S4x256x16, .f32⟩ : BufTy).Contents (Elt F) → (⟨S4x256x16, .f32⟩ : BufTy).Contents (Elt F)),
    unary main_arg0 main_v6806 ((extractStridedSlice S4x1x256 ![0, 340, 0] · slices_S4x512x256_S4x1x256_0_340_0) : (⟨S4x512x256, .f32⟩ : BufTy).Contents (Elt F) → (⟨S4x1x256, .f32⟩ : BufTy).Contents (Elt F)),
    reshape main_v6806 main_v6807 rfl shapeCasts_S4x1x256_S4x256,
    unary main_v6807 main_v6808 (broadcastInDim S4x256x1 ![0, 1] bcast_S4x256_S4x256x1_0_1 : (⟨S4x256, .f32⟩ : BufTy).Contents (Elt F) → (⟨S4x256x1, .f32⟩ : BufTy).Contents (Elt F)),
    unary main_arg2 main_v6809 ((extractStridedSlice S4x1x16 ![0, 340, 0] · slices_S4x512x16_S4x1x16_0_340_0) : (⟨S4x512x16, .f32⟩ : BufTy).Contents (Elt F) → (⟨S4x1x16, .f32⟩ : BufTy).Contents (Elt F)),
    reshape main_v6809 main_v6810 rfl shapeCasts_S4x1x16_S4x16,
    unary main_v6810 main_v6811 (broadcastInDim S4x1x16 ![0, 2] bcast_S4x16_S4x1x16_0_2 : (⟨S4x16, .f32⟩ : BufTy).Contents (Elt F) → (⟨S4x1x16, .f32⟩ : BufTy).Contents (Elt F)),
    unary main_v6808 main_v6812 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6811 main_v6813 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6812 main_v6813 main_v6814 (mulf : (⟨S4x256x16, .f32⟩ : BufTy).Contents (Elt F) → (⟨S4x256x16, .f32⟩ : BufTy).Contents (Elt F) → (⟨S4x256x16, .f32⟩ : BufTy).Contents (Elt F)),
    binary main_v6805 main_v6814 main_v6815 (addf : (⟨S4x256x16, .f32⟩ : BufTy).Contents (Elt F) → (⟨S4x256x16, .f32⟩ : BufTy).Contents (Elt F) → (⟨S4x256x16, .f32⟩ : BufTy).Contents (Elt F)),
    unary main_arg3 main_v6816 ((extractStridedSlice S4x1x16 ![0, 340, 0] · slices_S4x512x16_S4x1x16_0_340_0) : (⟨S4x512x16, .f32⟩ : BufTy).Contents (Elt F) → (⟨S4x1x16, .f32⟩ : BufTy).Contents (Elt F)),
    reshape main_v6816 main_v6817 rfl shapeCasts_S4x1x16_S4x16,
    unary main_v6817 main_v6818 (broadcastInDim S4x1x16 ![0, 2] bcast_S4x16_S4x1x16_0_2 : (⟨S4x16, .f32⟩ : BufTy).Contents (Elt F) → (⟨S4x1x16, .f32⟩ : BufTy).Contents (Elt F)),
    unary main_v6818 main_v6819 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6815 main_v6819 main_v6820 (mulf : (⟨S4x256x16, .f32⟩ : BufTy).Contents (Elt F) → (⟨S4x256x16, .f32⟩ : BufTy).Contents (Elt F) → (⟨S4x256x16, .f32⟩ : BufTy).Contents (Elt F)),
    nullary main_cst_680 (constant S_ .f32 0x00000000#32),
    binary main_v6820 main_cst_680 main_v6821 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_681 (constantI S_ 32 340#32),
    unary main_c_681 main_v6822 (broadcastInDim S1 ![] bcast_S_S1 : (⟨S_, .i32⟩ : BufTy).Contents (Elt F) → (⟨S1, .i32⟩ : BufTy).Contents (Elt F)),
    ternary main_v6803 main_v6822 main_v6821 main_v6823 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps340_ok : (stepOps340 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step340_val (V : Valuation τ sig (Elt Ideal)) :
    after (stepOps340 (F := Ideal)) V (no_index (Proc.devRef .tc main_v6815)) = stepH 340 (by decide) (V (Proc.devRef .tc main_arg0)) (V (Proc.devRef .tc main_v3)) (V (Proc.devRef .tc main_arg2)) (V (Proc.devRef .tc main_v6795))
    ∧ after (stepOps340 (F := Ideal)) V (no_index (Proc.devRef .tc main_v6823)) = stepY 340 (by decide) (V (Proc.devRef .tc main_arg3)) (stepH 340 (by decide) (V (Proc.devRef .tc main_arg0)) (V (Proc.devRef .tc main_v3)) (V (Proc.devRef .tc main_arg2)) (V (Proc.devRef .tc main_v6795))) (V (Proc.devRef .tc main_v6803)) := by
  simp only [stepOps340]
  after_results_simp
  first | exact ⟨rfl, rfl⟩ | fail "value"
/-- Step 341 of the loop: operations 7509 … 7530 of the program. -/
abbrev stepOps341 : List (HloOp τ sig (Elt F)) :=
  [ unary main_v3 main_v6824 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6815 main_v6824 main_v6825 (mulf : (⟨S4x256x16, .f32⟩ : BufTy).Contents (Elt F) → (⟨S4x256x16, .f32⟩ : BufTy).Contents (Elt F) → (⟨S4x256x16, .f32⟩ : BufTy).Contents (Elt F)),
    unary main_arg0 main_v6826 ((extractStridedSlice S4x1x256 ![0, 341, 0] · slices_S4x512x256_S4x1x256_0_341_0) : (⟨S4x512x256, .f32⟩ : BufTy).Contents (Elt F) → (⟨S4x1x256, .f32⟩ : BufTy).Contents (Elt F)),
    reshape main_v6826 main_v6827 rfl shapeCasts_S4x1x256_S4x256,
    unary main_v6827 main_v6828 (broadcastInDim S4x256x1 ![0, 1] bcast_S4x256_S4x256x1_0_1 : (⟨S4x256, .f32⟩ : BufTy).Contents (Elt F) → (⟨S4x256x1, .f32⟩ : BufTy).Contents (Elt F)),
    unary main_arg2 main_v6829 ((extractStridedSlice S4x1x16 ![0, 341, 0] · slices_S4x512x16_S4x1x16_0_341_0) : (⟨S4x512x16, .f32⟩ : BufTy).Contents (Elt F) → (⟨S4x1x16, .f32⟩ : BufTy).Contents (Elt F)),
    reshape main_v6829 main_v6830 rfl shapeCasts_S4x1x16_S4x16,
    unary main_v6830 main_v6831 (broadcastInDim S4x1x16 ![0, 2] bcast_S4x16_S4x1x16_0_2 : (⟨S4x16, .f32⟩ : BufTy).Contents (Elt F) → (⟨S4x1x16, .f32⟩ : BufTy).Contents (Elt F)),
    unary main_v6828 main_v6832 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6831 main_v6833 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6832 main_v6833 main_v6834 (mulf : (⟨S4x256x16, .f32⟩ : BufTy).Contents (Elt F) → (⟨S4x256x16, .f32⟩ : BufTy).Contents (Elt F) → (⟨S4x256x16, .f32⟩ : BufTy).Contents (Elt F)),
    binary main_v6825 main_v6834 main_v6835 (addf : (⟨S4x256x16, .f32⟩ : BufTy).Contents (Elt F) → (⟨S4x256x16, .f32⟩ : BufTy).Contents (Elt F) → (⟨S4x256x16, .f32⟩ : BufTy).Contents (Elt F)),
    unary main_arg3 main_v6836 ((extractStridedSlice S4x1x16 ![0, 341, 0] · slices_S4x512x16_S4x1x16_0_341_0) : (⟨S4x512x16, .f32⟩ : BufTy).Contents (Elt F) → (⟨S4x1x16, .f32⟩ : BufTy).Contents (Elt F)),
    reshape main_v6836 main_v6837 rfl shapeCasts_S4x1x16_S4x16,
    unary main_v6837 main_v6838 (broadcastInDim S4x1x16 ![0, 2] bcast_S4x16_S4x1x16_0_2 : (⟨S4x16, .f32⟩ : BufTy).Contents (Elt F) → (⟨S4x1x16, .f32⟩ : BufTy).Contents (Elt F)),
    unary main_v6838 main_v6839 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6835 main_v6839 main_v6840 (mulf : (⟨S4x256x16, .f32⟩ : BufTy).Contents (Elt F) → (⟨S4x256x16, .f32⟩ : BufTy).Contents (Elt F) → (⟨S4x256x16, .f32⟩ : BufTy).Contents (Elt F)),
    nullary main_cst_682 (constant S_ .f32 0x00000000#32),
    binary main_v6840 main_cst_682 main_v6841 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_683 (constantI S_ 32 341#32),
    unary main_c_683 main_v6842 (broadcastInDim S1 ![] bcast_S_S1 : (⟨S_, .i32⟩ : BufTy).Contents (Elt F) → (⟨S1, .i32⟩ : BufTy).Contents (Elt F)),
    ternary main_v6823 main_v6842 main_v6841 main_v6843 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps341_ok : (stepOps341 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step341_val (V : Valuation τ sig (Elt Ideal)) :
    after (stepOps341 (F := Ideal)) V (no_index (Proc.devRef .tc main_v6835)) = stepH 341 (by decide) (V (Proc.devRef .tc main_arg0)) (V (Proc.devRef .tc main_v3)) (V (Proc.devRef .tc main_arg2)) (V (Proc.devRef .tc main_v6815))
    ∧ after (stepOps341 (F := Ideal)) V (no_index (Proc.devRef .tc main_v6843)) = stepY 341 (by decide) (V (Proc.devRef .tc main_arg3)) (stepH 341 (by decide) (V (Proc.devRef .tc main_arg0)) (V (Proc.devRef .tc main_v3)) (V (Proc.devRef .tc main_arg2)) (V (Proc.devRef .tc main_v6815))) (V (Proc.devRef .tc main_v6823)) := by
  simp only [stepOps341]
  after_results_simp
  first | exact ⟨rfl, rfl⟩ | fail "value"
/-- Step 342 of the loop: operations 7531 … 7552 of the program. -/
abbrev stepOps342 : List (HloOp τ sig (Elt F)) :=
  [ unary main_v3 main_v6844 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6835 main_v6844 main_v6845 (mulf : (⟨S4x256x16, .f32⟩ : BufTy).Contents (Elt F) → (⟨S4x256x16, .f32⟩ : BufTy).Contents (Elt F) → (⟨S4x256x16, .f32⟩ : BufTy).Contents (Elt F)),
    unary main_arg0 main_v6846 ((extractStridedSlice S4x1x256 ![0, 342, 0] · slices_S4x512x256_S4x1x256_0_342_0) : (⟨S4x512x256, .f32⟩ : BufTy).Contents (Elt F) → (⟨S4x1x256, .f32⟩ : BufTy).Contents (Elt F)),
    reshape main_v6846 main_v6847 rfl shapeCasts_S4x1x256_S4x256,
    unary main_v6847 main_v6848 (broadcastInDim S4x256x1 ![0, 1] bcast_S4x256_S4x256x1_0_1 : (⟨S4x256, .f32⟩ : BufTy).Contents (Elt F) → (⟨S4x256x1, .f32⟩ : BufTy).Contents (Elt F)),
    unary main_arg2 main_v6849 ((extractStridedSlice S4x1x16 ![0, 342, 0] · slices_S4x512x16_S4x1x16_0_342_0) : (⟨S4x512x16, .f32⟩ : BufTy).Contents (Elt F) → (⟨S4x1x16, .f32⟩ : BufTy).Contents (Elt F)),
    reshape main_v6849 main_v6850 rfl shapeCasts_S4x1x16_S4x16,
    unary main_v6850 main_v6851 (broadcastInDim S4x1x16 ![0, 2] bcast_S4x16_S4x1x16_0_2 : (⟨S4x16, .f32⟩ : BufTy).Contents (Elt F) → (⟨S4x1x16, .f32⟩ : BufTy).Contents (Elt F)),
    unary main_v6848 main_v6852 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6851 main_v6853 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6852 main_v6853 main_v6854 (mulf : (⟨S4x256x16, .f32⟩ : BufTy).Contents (Elt F) → (⟨S4x256x16, .f32⟩ : BufTy).Contents (Elt F) → (⟨S4x256x16, .f32⟩ : BufTy).Contents (Elt F)),
    binary main_v6845 main_v6854 main_v6855 (addf : (⟨S4x256x16, .f32⟩ : BufTy).Contents (Elt F) → (⟨S4x256x16, .f32⟩ : BufTy).Contents (Elt F) → (⟨S4x256x16, .f32⟩ : BufTy).Contents (Elt F)),
    unary main_arg3 main_v6856 ((extractStridedSlice S4x1x16 ![0, 342, 0] · slices_S4x512x16_S4x1x16_0_342_0) : (⟨S4x512x16, .f32⟩ : BufTy).Contents (Elt F) → (⟨S4x1x16, .f32⟩ : BufTy).Contents (Elt F)),
    reshape main_v6856 main_v6857 rfl shapeCasts_S4x1x16_S4x16,
    unary main_v6857 main_v6858 (broadcastInDim S4x1x16 ![0, 2] bcast_S4x16_S4x1x16_0_2 : (⟨S4x16, .f32⟩ : BufTy).Contents (Elt F) → (⟨S4x1x16, .f32⟩ : BufTy).Contents (Elt F)),
    unary main_v6858 main_v6859 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6855 main_v6859 main_v6860 (mulf : (⟨S4x256x16, .f32⟩ : BufTy).Contents (Elt F) → (⟨S4x256x16, .f32⟩ : BufTy).Contents (Elt F) → (⟨S4x256x16, .f32⟩ : BufTy).Contents (Elt F)),
    nullary main_cst_684 (constant S_ .f32 0x00000000#32),
    binary main_v6860 main_cst_684 main_v6861 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_685 (constantI S_ 32 342#32),
    unary main_c_685 main_v6862 (broadcastInDim S1 ![] bcast_S_S1 : (⟨S_, .i32⟩ : BufTy).Contents (Elt F) → (⟨S1, .i32⟩ : BufTy).Contents (Elt F)),
    ternary main_v6843 main_v6862 main_v6861 main_v6863 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps342_ok : (stepOps342 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step342_val (V : Valuation τ sig (Elt Ideal)) :
    after (stepOps342 (F := Ideal)) V (no_index (Proc.devRef .tc main_v6855)) = stepH 342 (by decide) (V (Proc.devRef .tc main_arg0)) (V (Proc.devRef .tc main_v3)) (V (Proc.devRef .tc main_arg2)) (V (Proc.devRef .tc main_v6835))
    ∧ after (stepOps342 (F := Ideal)) V (no_index (Proc.devRef .tc main_v6863)) = stepY 342 (by decide) (V (Proc.devRef .tc main_arg3)) (stepH 342 (by decide) (V (Proc.devRef .tc main_arg0)) (V (Proc.devRef .tc main_v3)) (V (Proc.devRef .tc main_arg2)) (V (Proc.devRef .tc main_v6835))) (V (Proc.devRef .tc main_v6843)) := by
  simp only [stepOps342]
  after_results_simp
  first | exact ⟨rfl, rfl⟩ | fail "value"
/-- Step 343 of the loop: operations 7553 … 7574 of the program. -/
abbrev stepOps343 : List (HloOp τ sig (Elt F)) :=
  [ unary main_v3 main_v6864 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6855 main_v6864 main_v6865 (mulf : (⟨S4x256x16, .f32⟩ : BufTy).Contents (Elt F) → (⟨S4x256x16, .f32⟩ : BufTy).Contents (Elt F) → (⟨S4x256x16, .f32⟩ : BufTy).Contents (Elt F)),
    unary main_arg0 main_v6866 ((extractStridedSlice S4x1x256 ![0, 343, 0] · slices_S4x512x256_S4x1x256_0_343_0) : (⟨S4x512x256, .f32⟩ : BufTy).Contents (Elt F) → (⟨S4x1x256, .f32⟩ : BufTy).Contents (Elt F)),
    reshape main_v6866 main_v6867 rfl shapeCasts_S4x1x256_S4x256,
    unary main_v6867 main_v6868 (broadcastInDim S4x256x1 ![0, 1] bcast_S4x256_S4x256x1_0_1 : (⟨S4x256, .f32⟩ : BufTy).Contents (Elt F) → (⟨S4x256x1, .f32⟩ : BufTy).Contents (Elt F)),
    unary main_arg2 main_v6869 ((extractStridedSlice S4x1x16 ![0, 343, 0] · slices_S4x512x16_S4x1x16_0_343_0) : (⟨S4x512x16, .f32⟩ : BufTy).Contents (Elt F) → (⟨S4x1x16, .f32⟩ : BufTy).Contents (Elt F)),
    reshape main_v6869 main_v6870 rfl shapeCasts_S4x1x16_S4x16,
    unary main_v6870 main_v6871 (broadcastInDim S4x1x16 ![0, 2] bcast_S4x16_S4x1x16_0_2 : (⟨S4x16, .f32⟩ : BufTy).Contents (Elt F) → (⟨S4x1x16, .f32⟩ : BufTy).Contents (Elt F)),
    unary main_v6868 main_v6872 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6871 main_v6873 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6872 main_v6873 main_v6874 (mulf : (⟨S4x256x16, .f32⟩ : BufTy).Contents (Elt F) → (⟨S4x256x16, .f32⟩ : BufTy).Contents (Elt F) → (⟨S4x256x16, .f32⟩ : BufTy).Contents (Elt F)),
    binary main_v6865 main_v6874 main_v6875 (addf : (⟨S4x256x16, .f32⟩ : BufTy).Contents (Elt F) → (⟨S4x256x16, .f32⟩ : BufTy).Contents (Elt F) → (⟨S4x256x16, .f32⟩ : BufTy).Contents (Elt F)),
    unary main_arg3 main_v6876 ((extractStridedSlice S4x1x16 ![0, 343, 0] · slices_S4x512x16_S4x1x16_0_343_0) : (⟨S4x512x16, .f32⟩ : BufTy).Contents (Elt F) → (⟨S4x1x16, .f32⟩ : BufTy).Contents (Elt F)),
    reshape main_v6876 main_v6877 rfl shapeCasts_S4x1x16_S4x16,
    unary main_v6877 main_v6878 (broadcastInDim S4x1x16 ![0, 2] bcast_S4x16_S4x1x16_0_2 : (⟨S4x16, .f32⟩ : BufTy).Contents (Elt F) → (⟨S4x1x16, .f32⟩ : BufTy).Contents (Elt F)),
    unary main_v6878 main_v6879 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6875 main_v6879 main_v6880 (mulf : (⟨S4x256x16, .f32⟩ : BufTy).Contents (Elt F) → (⟨S4x256x16, .f32⟩ : BufTy).Contents (Elt F) → (⟨S4x256x16, .f32⟩ : BufTy).Contents (Elt F)),
    nullary main_cst_686 (constant S_ .f32 0x00000000#32),
    binary main_v6880 main_cst_686 main_v6881 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_687 (constantI S_ 32 343#32),
    unary main_c_687 main_v6882 (broadcastInDim S1 ![] bcast_S_S1 : (⟨S_, .i32⟩ : BufTy).Contents (Elt F) → (⟨S1, .i32⟩ : BufTy).Contents (Elt F)),
    ternary main_v6863 main_v6882 main_v6881 main_v6883 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps343_ok : (stepOps343 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step343_val (V : Valuation τ sig (Elt Ideal)) :
    after (stepOps343 (F := Ideal)) V (no_index (Proc.devRef .tc main_v6875)) = stepH 343 (by decide) (V (Proc.devRef .tc main_arg0)) (V (Proc.devRef .tc main_v3)) (V (Proc.devRef .tc main_arg2)) (V (Proc.devRef .tc main_v6855))
    ∧ after (stepOps343 (F := Ideal)) V (no_index (Proc.devRef .tc main_v6883)) = stepY 343 (by decide) (V (Proc.devRef .tc main_arg3)) (stepH 343 (by decide) (V (Proc.devRef .tc main_arg0)) (V (Proc.devRef .tc main_v3)) (V (Proc.devRef .tc main_arg2)) (V (Proc.devRef .tc main_v6855))) (V (Proc.devRef .tc main_v6863)) := by
  simp only [stepOps343]
  after_results_simp
  first | exact ⟨rfl, rfl⟩ | fail "value"
/-- Step 344 of the loop: operations 7575 … 7596 of the program. -/
abbrev stepOps344 : List (HloOp τ sig (Elt F)) :=
  [ unary main_v3 main_v6884 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6875 main_v6884 main_v6885 (mulf : (⟨S4x256x16, .f32⟩ : BufTy).Contents (Elt F) → (⟨S4x256x16, .f32⟩ : BufTy).Contents (Elt F) → (⟨S4x256x16, .f32⟩ : BufTy).Contents (Elt F)),
    unary main_arg0 main_v6886 ((extractStridedSlice S4x1x256 ![0, 344, 0] · slices_S4x512x256_S4x1x256_0_344_0) : (⟨S4x512x256, .f32⟩ : BufTy).Contents (Elt F) → (⟨S4x1x256, .f32⟩ : BufTy).Contents (Elt F)),
    reshape main_v6886 main_v6887 rfl shapeCasts_S4x1x256_S4x256,
    unary main_v6887 main_v6888 (broadcastInDim S4x256x1 ![0, 1] bcast_S4x256_S4x256x1_0_1 : (⟨S4x256, .f32⟩ : BufTy).Contents (Elt F) → (⟨S4x256x1, .f32⟩ : BufTy).Contents (Elt F)),
    unary main_arg2 main_v6889 ((extractStridedSlice S4x1x16 ![0, 344, 0] · slices_S4x512x16_S4x1x16_0_344_0) : (⟨S4x512x16, .f32⟩ : BufTy).Contents (Elt F) → (⟨S4x1x16, .f32⟩ : BufTy).Contents (Elt F)),
    reshape main_v6889 main_v6890 rfl shapeCasts_S4x1x16_S4x16,
    unary main_v6890 main_v6891 (broadcastInDim S4x1x16 ![0, 2] bcast_S4x16_S4x1x16_0_2 : (⟨S4x16, .f32⟩ : BufTy).Contents (Elt F) → (⟨S4x1x16, .f32⟩ : BufTy).Contents (Elt F)),
    unary main_v6888 main_v6892 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6891 main_v6893 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6892 main_v6893 main_v6894 (mulf : (⟨S4x256x16, .f32⟩ : BufTy).Contents (Elt F) → (⟨S4x256x16, .f32⟩ : BufTy).Contents (Elt F) → (⟨S4x256x16, .f32⟩ : BufTy).Contents (Elt F)),
    binary main_v6885 main_v6894 main_v6895 (addf : (⟨S4x256x16, .f32⟩ : BufTy).Contents (Elt F) → (⟨S4x256x16, .f32⟩ : BufTy).Contents (Elt F) → (⟨S4x256x16, .f32⟩ : BufTy).Contents (Elt F)),
    unary main_arg3 main_v6896 ((extractStridedSlice S4x1x16 ![0, 344, 0] · slices_S4x512x16_S4x1x16_0_344_0) : (⟨S4x512x16, .f32⟩ : BufTy).Contents (Elt F) → (⟨S4x1x16, .f32⟩ : BufTy).Contents (Elt F)),
    reshape main_v6896 main_v6897 rfl shapeCasts_S4x1x16_S4x16,
    unary main_v6897 main_v6898 (broadcastInDim S4x1x16 ![0, 2] bcast_S4x16_S4x1x16_0_2 : (⟨S4x16, .f32⟩ : BufTy).Contents (Elt F) → (⟨S4x1x16, .f32⟩ : BufTy).Contents (Elt F)),
    unary main_v6898 main_v6899 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6895 main_v6899 main_v6900 (mulf : (⟨S4x256x16, .f32⟩ : BufTy).Contents (Elt F) → (⟨S4x256x16, .f32⟩ : BufTy).Contents (Elt F) → (⟨S4x256x16, .f32⟩ : BufTy).Contents (Elt F)),
    nullary main_cst_688 (constant S_ .f32 0x00000000#32),
    binary main_v6900 main_cst_688 main_v6901 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_689 (constantI S_ 32 344#32),
    unary main_c_689 main_v6902 (broadcastInDim S1 ![] bcast_S_S1 : (⟨S_, .i32⟩ : BufTy).Contents (Elt F) → (⟨S1, .i32⟩ : BufTy).Contents (Elt F)),
    ternary main_v6883 main_v6902 main_v6901 main_v6903 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps344_ok : (stepOps344 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step344_val (V : Valuation τ sig (Elt Ideal)) :
    after (stepOps344 (F := Ideal)) V (no_index (Proc.devRef .tc main_v6895)) = stepH 344 (by decide) (V (Proc.devRef .tc main_arg0)) (V (Proc.devRef .tc main_v3)) (V (Proc.devRef .tc main_arg2)) (V (Proc.devRef .tc main_v6875))
    ∧ after (stepOps344 (F := Ideal)) V (no_index (Proc.devRef .tc main_v6903)) = stepY 344 (by decide) (V (Proc.devRef .tc main_arg3)) (stepH 344 (by decide) (V (Proc.devRef .tc main_arg0)) (V (Proc.devRef .tc main_v3)) (V (Proc.devRef .tc main_arg2)) (V (Proc.devRef .tc main_v6875))) (V (Proc.devRef .tc main_v6883)) := by
  simp only [stepOps344]
  after_results_simp
  first | exact ⟨rfl, rfl⟩ | fail "value"
/-- Step 345 of the loop: operations 7597 … 7618 of the program. -/
abbrev stepOps345 : List (HloOp τ sig (Elt F)) :=
  [ unary main_v3 main_v6904 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6895 main_v6904 main_v6905 (mulf : (⟨S4x256x16, .f32⟩ : BufTy).Contents (Elt F) → (⟨S4x256x16, .f32⟩ : BufTy).Contents (Elt F) → (⟨S4x256x16, .f32⟩ : BufTy).Contents (Elt F)),
    unary main_arg0 main_v6906 ((extractStridedSlice S4x1x256 ![0, 345, 0] · slices_S4x512x256_S4x1x256_0_345_0) : (⟨S4x512x256, .f32⟩ : BufTy).Contents (Elt F) → (⟨S4x1x256, .f32⟩ : BufTy).Contents (Elt F)),
    reshape main_v6906 main_v6907 rfl shapeCasts_S4x1x256_S4x256,
    unary main_v6907 main_v6908 (broadcastInDim S4x256x1 ![0, 1] bcast_S4x256_S4x256x1_0_1 : (⟨S4x256, .f32⟩ : BufTy).Contents (Elt F) → (⟨S4x256x1, .f32⟩ : BufTy).Contents (Elt F)),
    unary main_arg2 main_v6909 ((extractStridedSlice S4x1x16 ![0, 345, 0] · slices_S4x512x16_S4x1x16_0_345_0) : (⟨S4x512x16, .f32⟩ : BufTy).Contents (Elt F) → (⟨S4x1x16, .f32⟩ : BufTy).Contents (Elt F)),
    reshape main_v6909 main_v6910 rfl shapeCasts_S4x1x16_S4x16,
    unary main_v6910 main_v6911 (broadcastInDim S4x1x16 ![0, 2] bcast_S4x16_S4x1x16_0_2 : (⟨S4x16, .f32⟩ : BufTy).Contents (Elt F) → (⟨S4x1x16, .f32⟩ : BufTy).Contents (Elt F)),
    unary main_v6908 main_v6912 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6911 main_v6913 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6912 main_v6913 main_v6914 (mulf : (⟨S4x256x16, .f32⟩ : BufTy).Contents (Elt F) → (⟨S4x256x16, .f32⟩ : BufTy).Contents (Elt F) → (⟨S4x256x16, .f32⟩ : BufTy).Contents (Elt F)),
    binary main_v6905 main_v6914 main_v6915 (addf : (⟨S4x256x16, .f32⟩ : BufTy).Contents (Elt F) → (⟨S4x256x16, .f32⟩ : BufTy).Contents (Elt F) → (⟨S4x256x16, .f32⟩ : BufTy).Contents (Elt F)),
    unary main_arg3 main_v6916 ((extractStridedSlice S4x1x16 ![0, 345, 0] · slices_S4x512x16_S4x1x16_0_345_0) : (⟨S4x512x16, .f32⟩ : BufTy).Contents (Elt F) → (⟨S4x1x16, .f32⟩ : BufTy).Contents (Elt F)),
    reshape main_v6916 main_v6917 rfl shapeCasts_S4x1x16_S4x16,
    unary main_v6917 main_v6918 (broadcastInDim S4x1x16 ![0, 2] bcast_S4x16_S4x1x16_0_2 : (⟨S4x16, .f32⟩ : BufTy).Contents (Elt F) → (⟨S4x1x16, .f32⟩ : BufTy).Contents (Elt F)),
    unary main_v6918 main_v6919 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6915 main_v6919 main_v6920 (mulf : (⟨S4x256x16, .f32⟩ : BufTy).Contents (Elt F) → (⟨S4x256x16, .f32⟩ : BufTy).Contents (Elt F) → (⟨S4x256x16, .f32⟩ : BufTy).Contents (Elt F)),
    nullary main_cst_690 (constant S_ .f32 0x00000000#32),
    binary main_v6920 main_cst_690 main_v6921 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_691 (constantI S_ 32 345#32),
    unary main_c_691 main_v6922 (broadcastInDim S1 ![] bcast_S_S1 : (⟨S_, .i32⟩ : BufTy).Contents (Elt F) → (⟨S1, .i32⟩ : BufTy).Contents (Elt F)),
    ternary main_v6903 main_v6922 main_v6921 main_v6923 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps345_ok : (stepOps345 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step345_val (V : Valuation τ sig (Elt Ideal)) :
    after (stepOps345 (F := Ideal)) V (no_index (Proc.devRef .tc main_v6915)) = stepH 345 (by decide) (V (Proc.devRef .tc main_arg0)) (V (Proc.devRef .tc main_v3)) (V (Proc.devRef .tc main_arg2)) (V (Proc.devRef .tc main_v6895))
    ∧ after (stepOps345 (F := Ideal)) V (no_index (Proc.devRef .tc main_v6923)) = stepY 345 (by decide) (V (Proc.devRef .tc main_arg3)) (stepH 345 (by decide) (V (Proc.devRef .tc main_arg0)) (V (Proc.devRef .tc main_v3)) (V (Proc.devRef .tc main_arg2)) (V (Proc.devRef .tc main_v6895))) (V (Proc.devRef .tc main_v6903)) := by
  simp only [stepOps345]
  after_results_simp
  first | exact ⟨rfl, rfl⟩ | fail "value"
/-- Step 346 of the loop: operations 7619 … 7640 of the program. -/
abbrev stepOps346 : List (HloOp τ sig (Elt F)) :=
  [ unary main_v3 main_v6924 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6915 main_v6924 main_v6925 (mulf : (⟨S4x256x16, .f32⟩ : BufTy).Contents (Elt F) → (⟨S4x256x16, .f32⟩ : BufTy).Contents (Elt F) → (⟨S4x256x16, .f32⟩ : BufTy).Contents (Elt F)),
    unary main_arg0 main_v6926 ((extractStridedSlice S4x1x256 ![0, 346, 0] · slices_S4x512x256_S4x1x256_0_346_0) : (⟨S4x512x256, .f32⟩ : BufTy).Contents (Elt F) → (⟨S4x1x256, .f32⟩ : BufTy).Contents (Elt F)),
    reshape main_v6926 main_v6927 rfl shapeCasts_S4x1x256_S4x256,
    unary main_v6927 main_v6928 (broadcastInDim S4x256x1 ![0, 1] bcast_S4x256_S4x256x1_0_1 : (⟨S4x256, .f32⟩ : BufTy).Contents (Elt F) → (⟨S4x256x1, .f32⟩ : BufTy).Contents (Elt F)),
    unary main_arg2 main_v6929 ((extractStridedSlice S4x1x16 ![0, 346, 0] · slices_S4x512x16_S4x1x16_0_346_0) : (⟨S4x512x16, .f32⟩ : BufTy).Contents (Elt F) → (⟨S4x1x16, .f32⟩ : BufTy).Contents (Elt F)),
    reshape main_v6929 main_v6930 rfl shapeCasts_S4x1x16_S4x16,
    unary main_v6930 main_v6931 (broadcastInDim S4x1x16 ![0, 2] bcast_S4x16_S4x1x16_0_2 : (⟨S4x16, .f32⟩ : BufTy).Contents (Elt F) → (⟨S4x1x16, .f32⟩ : BufTy).Contents (Elt F)),
    unary main_v6928 main_v6932 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6931 main_v6933 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6932 main_v6933 main_v6934 (mulf : (⟨S4x256x16, .f32⟩ : BufTy).Contents (Elt F) → (⟨S4x256x16, .f32⟩ : BufTy).Contents (Elt F) → (⟨S4x256x16, .f32⟩ : BufTy).Contents (Elt F)),
    binary main_v6925 main_v6934 main_v6935 (addf : (⟨S4x256x16, .f32⟩ : BufTy).Contents (Elt F) → (⟨S4x256x16, .f32⟩ : BufTy).Contents (Elt F) → (⟨S4x256x16, .f32⟩ : BufTy).Contents (Elt F)),
    unary main_arg3 main_v6936 ((extractStridedSlice S4x1x16 ![0, 346, 0] · slices_S4x512x16_S4x1x16_0_346_0) : (⟨S4x512x16, .f32⟩ : BufTy).Contents (Elt F) → (⟨S4x1x16, .f32⟩ : BufTy).Contents (Elt F)),
    reshape main_v6936 main_v6937 rfl shapeCasts_S4x1x16_S4x16,
    unary main_v6937 main_v6938 (broadcastInDim S4x1x16 ![0, 2] bcast_S4x16_S4x1x16_0_2 : (⟨S4x16, .f32⟩ : BufTy).Contents (Elt F) → (⟨S4x1x16, .f32⟩ : BufTy).Contents (Elt F)),
    unary main_v6938 main_v6939 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6935 main_v6939 main_v6940 (mulf : (⟨S4x256x16, .f32⟩ : BufTy).Contents (Elt F) → (⟨S4x256x16, .f32⟩ : BufTy).Contents (Elt F) → (⟨S4x256x16, .f32⟩ : BufTy).Contents (Elt F)),
    nullary main_cst_692 (constant S_ .f32 0x00000000#32),
    binary main_v6940 main_cst_692 main_v6941 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_693 (constantI S_ 32 346#32),
    unary main_c_693 main_v6942 (broadcastInDim S1 ![] bcast_S_S1 : (⟨S_, .i32⟩ : BufTy).Contents (Elt F) → (⟨S1, .i32⟩ : BufTy).Contents (Elt F)),
    ternary main_v6923 main_v6942 main_v6941 main_v6943 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps346_ok : (stepOps346 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step346_val (V : Valuation τ sig (Elt Ideal)) :
    after (stepOps346 (F := Ideal)) V (no_index (Proc.devRef .tc main_v6935)) = stepH 346 (by decide) (V (Proc.devRef .tc main_arg0)) (V (Proc.devRef .tc main_v3)) (V (Proc.devRef .tc main_arg2)) (V (Proc.devRef .tc main_v6915))
    ∧ after (stepOps346 (F := Ideal)) V (no_index (Proc.devRef .tc main_v6943)) = stepY 346 (by decide) (V (Proc.devRef .tc main_arg3)) (stepH 346 (by decide) (V (Proc.devRef .tc main_arg0)) (V (Proc.devRef .tc main_v3)) (V (Proc.devRef .tc main_arg2)) (V (Proc.devRef .tc main_v6915))) (V (Proc.devRef .tc main_v6923)) := by
  simp only [stepOps346]
  after_results_simp
  first | exact ⟨rfl, rfl⟩ | fail "value"
/-- Step 347 of the loop: operations 7641 … 7662 of the program. -/
abbrev stepOps347 : List (HloOp τ sig (Elt F)) :=
  [ unary main_v3 main_v6944 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6935 main_v6944 main_v6945 (mulf : (⟨S4x256x16, .f32⟩ : BufTy).Contents (Elt F) → (⟨S4x256x16, .f32⟩ : BufTy).Contents (Elt F) → (⟨S4x256x16, .f32⟩ : BufTy).Contents (Elt F)),
    unary main_arg0 main_v6946 ((extractStridedSlice S4x1x256 ![0, 347, 0] · slices_S4x512x256_S4x1x256_0_347_0) : (⟨S4x512x256, .f32⟩ : BufTy).Contents (Elt F) → (⟨S4x1x256, .f32⟩ : BufTy).Contents (Elt F)),
    reshape main_v6946 main_v6947 rfl shapeCasts_S4x1x256_S4x256,
    unary main_v6947 main_v6948 (broadcastInDim S4x256x1 ![0, 1] bcast_S4x256_S4x256x1_0_1 : (⟨S4x256, .f32⟩ : BufTy).Contents (Elt F) → (⟨S4x256x1, .f32⟩ : BufTy).Contents (Elt F)),
    unary main_arg2 main_v6949 ((extractStridedSlice S4x1x16 ![0, 347, 0] · slices_S4x512x16_S4x1x16_0_347_0) : (⟨S4x512x16, .f32⟩ : BufTy).Contents (Elt F) → (⟨S4x1x16, .f32⟩ : BufTy).Contents (Elt F)),
    reshape main_v6949 main_v6950 rfl shapeCasts_S4x1x16_S4x16,
    unary main_v6950 main_v6951 (broadcastInDim S4x1x16 ![0, 2] bcast_S4x16_S4x1x16_0_2 : (⟨S4x16, .f32⟩ : BufTy).Contents (Elt F) → (⟨S4x1x16, .f32⟩ : BufTy).Contents (Elt F)),
    unary main_v6948 main_v6952 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6951 main_v6953 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6952 main_v6953 main_v6954 (mulf : (⟨S4x256x16, .f32⟩ : BufTy).Contents (Elt F) → (⟨S4x256x16, .f32⟩ : BufTy).Contents (Elt F) → (⟨S4x256x16, .f32⟩ : BufTy).Contents (Elt F)),
    binary main_v6945 main_v6954 main_v6955 (addf : (⟨S4x256x16, .f32⟩ : BufTy).Contents (Elt F) → (⟨S4x256x16, .f32⟩ : BufTy).Contents (Elt F) → (⟨S4x256x16, .f32⟩ : BufTy).Contents (Elt F)),
    unary main_arg3 main_v6956 ((extractStridedSlice S4x1x16 ![0, 347, 0] · slices_S4x512x16_S4x1x16_0_347_0) : (⟨S4x512x16, .f32⟩ : BufTy).Contents (Elt F) → (⟨S4x1x16, .f32⟩ : BufTy).Contents (Elt F)),
    reshape main_v6956 main_v6957 rfl shapeCasts_S4x1x16_S4x16,
    unary main_v6957 main_v6958 (broadcastInDim S4x1x16 ![0, 2] bcast_S4x16_S4x1x16_0_2 : (⟨S4x16, .f32⟩ : BufTy).Contents (Elt F) → (⟨S4x1x16, .f32⟩ : BufTy).Contents (Elt F)),
    unary main_v6958 main_v6959 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6955 main_v6959 main_v6960 (mulf : (⟨S4x256x16, .f32⟩ : BufTy).Contents (Elt F) → (⟨S4x256x16, .f32⟩ : BufTy).Contents (Elt F) → (⟨S4x256x16, .f32⟩ : BufTy).Contents (Elt F)),
    nullary main_cst_694 (constant S_ .f32 0x00000000#32),
    binary main_v6960 main_cst_694 main_v6961 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_695 (constantI S_ 32 347#32),
    unary main_c_695 main_v6962 (broadcastInDim S1 ![] bcast_S_S1 : (⟨S_, .i32⟩ : BufTy).Contents (Elt F) → (⟨S1, .i32⟩ : BufTy).Contents (Elt F)),
    ternary main_v6943 main_v6962 main_v6961 main_v6963 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps347_ok : (stepOps347 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step347_val (V : Valuation τ sig (Elt Ideal)) :
    after (stepOps347 (F := Ideal)) V (no_index (Proc.devRef .tc main_v6955)) = stepH 347 (by decide) (V (Proc.devRef .tc main_arg0)) (V (Proc.devRef .tc main_v3)) (V (Proc.devRef .tc main_arg2)) (V (Proc.devRef .tc main_v6935))
    ∧ after (stepOps347 (F := Ideal)) V (no_index (Proc.devRef .tc main_v6963)) = stepY 347 (by decide) (V (Proc.devRef .tc main_arg3)) (stepH 347 (by decide) (V (Proc.devRef .tc main_arg0)) (V (Proc.devRef .tc main_v3)) (V (Proc.devRef .tc main_arg2)) (V (Proc.devRef .tc main_v6935))) (V (Proc.devRef .tc main_v6943)) := by
  simp only [stepOps347]
  after_results_simp
  first | exact ⟨rfl, rfl⟩ | fail "value"
/-- Step 348 of the loop: operations 7663 … 7684 of the program. -/
abbrev stepOps348 : List (HloOp τ sig (Elt F)) :=
  [ unary main_v3 main_v6964 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6955 main_v6964 main_v6965 (mulf : (⟨S4x256x16, .f32⟩ : BufTy).Contents (Elt F) → (⟨S4x256x16, .f32⟩ : BufTy).Contents (Elt F) → (⟨S4x256x16, .f32⟩ : BufTy).Contents (Elt F)),
    unary main_arg0 main_v6966 ((extractStridedSlice S4x1x256 ![0, 348, 0] · slices_S4x512x256_S4x1x256_0_348_0) : (⟨S4x512x256, .f32⟩ : BufTy).Contents (Elt F) → (⟨S4x1x256, .f32⟩ : BufTy).Contents (Elt F)),
    reshape main_v6966 main_v6967 rfl shapeCasts_S4x1x256_S4x256,
    unary main_v6967 main_v6968 (broadcastInDim S4x256x1 ![0, 1] bcast_S4x256_S4x256x1_0_1 : (⟨S4x256, .f32⟩ : BufTy).Contents (Elt F) → (⟨S4x256x1, .f32⟩ : BufTy).Contents (Elt F)),
    unary main_arg2 main_v6969 ((extractStridedSlice S4x1x16 ![0, 348, 0] · slices_S4x512x16_S4x1x16_0_348_0) : (⟨S4x512x16, .f32⟩ : BufTy).Contents (Elt F) → (⟨S4x1x16, .f32⟩ : BufTy).Contents (Elt F)),
    reshape main_v6969 main_v6970 rfl shapeCasts_S4x1x16_S4x16,
    unary main_v6970 main_v6971 (broadcastInDim S4x1x16 ![0, 2] bcast_S4x16_S4x1x16_0_2 : (⟨S4x16, .f32⟩ : BufTy).Contents (Elt F) → (⟨S4x1x16, .f32⟩ : BufTy).Contents (Elt F)),
    unary main_v6968 main_v6972 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6971 main_v6973 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6972 main_v6973 main_v6974 (mulf : (⟨S4x256x16, .f32⟩ : BufTy).Contents (Elt F) → (⟨S4x256x16, .f32⟩ : BufTy).Contents (Elt F) → (⟨S4x256x16, .f32⟩ : BufTy).Contents (Elt F)),
    binary main_v6965 main_v6974 main_v6975 (addf : (⟨S4x256x16, .f32⟩ : BufTy).Contents (Elt F) → (⟨S4x256x16, .f32⟩ : BufTy).Contents (Elt F) → (⟨S4x256x16, .f32⟩ : BufTy).Contents (Elt F)),
    unary main_arg3 main_v6976 ((extractStridedSlice S4x1x16 ![0, 348, 0] · slices_S4x512x16_S4x1x16_0_348_0) : (⟨S4x512x16, .f32⟩ : BufTy).Contents (Elt F) → (⟨S4x1x16, .f32⟩ : BufTy).Contents (Elt F)),
    reshape main_v6976 main_v6977 rfl shapeCasts_S4x1x16_S4x16,
    unary main_v6977 main_v6978 (broadcastInDim S4x1x16 ![0, 2] bcast_S4x16_S4x1x16_0_2 : (⟨S4x16, .f32⟩ : BufTy).Contents (Elt F) → (⟨S4x1x16, .f32⟩ : BufTy).Contents (Elt F)),
    unary main_v6978 main_v6979 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6975 main_v6979 main_v6980 (mulf : (⟨S4x256x16, .f32⟩ : BufTy).Contents (Elt F) → (⟨S4x256x16, .f32⟩ : BufTy).Contents (Elt F) → (⟨S4x256x16, .f32⟩ : BufTy).Contents (Elt F)),
    nullary main_cst_696 (constant S_ .f32 0x00000000#32),
    binary main_v6980 main_cst_696 main_v6981 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_697 (constantI S_ 32 348#32),
    unary main_c_697 main_v6982 (broadcastInDim S1 ![] bcast_S_S1 : (⟨S_, .i32⟩ : BufTy).Contents (Elt F) → (⟨S1, .i32⟩ : BufTy).Contents (Elt F)),
    ternary main_v6963 main_v6982 main_v6981 main_v6983 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps348_ok : (stepOps348 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step348_val (V : Valuation τ sig (Elt Ideal)) :
    after (stepOps348 (F := Ideal)) V (no_index (Proc.devRef .tc main_v6975)) = stepH 348 (by decide) (V (Proc.devRef .tc main_arg0)) (V (Proc.devRef .tc main_v3)) (V (Proc.devRef .tc main_arg2)) (V (Proc.devRef .tc main_v6955))
    ∧ after (stepOps348 (F := Ideal)) V (no_index (Proc.devRef .tc main_v6983)) = stepY 348 (by decide) (V (Proc.devRef .tc main_arg3)) (stepH 348 (by decide) (V (Proc.devRef .tc main_arg0)) (V (Proc.devRef .tc main_v3)) (V (Proc.devRef .tc main_arg2)) (V (Proc.devRef .tc main_v6955))) (V (Proc.devRef .tc main_v6963)) := by
  simp only [stepOps348]
  after_results_simp
  first | exact ⟨rfl, rfl⟩ | fail "value"
/-- Step 349 of the loop: operations 7685 … 7706 of the program. -/
abbrev stepOps349 : List (HloOp τ sig (Elt F)) :=
  [ unary main_v3 main_v6984 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6975 main_v6984 main_v6985 (mulf : (⟨S4x256x16, .f32⟩ : BufTy).Contents (Elt F) → (⟨S4x256x16, .f32⟩ : BufTy).Contents (Elt F) → (⟨S4x256x16, .f32⟩ : BufTy).Contents (Elt F)),
    unary main_arg0 main_v6986 ((extractStridedSlice S4x1x256 ![0, 349, 0] · slices_S4x512x256_S4x1x256_0_349_0) : (⟨S4x512x256, .f32⟩ : BufTy).Contents (Elt F) → (⟨S4x1x256, .f32⟩ : BufTy).Contents (Elt F)),
    reshape main_v6986 main_v6987 rfl shapeCasts_S4x1x256_S4x256,
    unary main_v6987 main_v6988 (broadcastInDim S4x256x1 ![0, 1] bcast_S4x256_S4x256x1_0_1 : (⟨S4x256, .f32⟩ : BufTy).Contents (Elt F) → (⟨S4x256x1, .f32⟩ : BufTy).Contents (Elt F)),
    unary main_arg2 main_v6989 ((extractStridedSlice S4x1x16 ![0, 349, 0] · slices_S4x512x16_S4x1x16_0_349_0) : (⟨S4x512x16, .f32⟩ : BufTy).Contents (Elt F) → (⟨S4x1x16, .f32⟩ : BufTy).Contents (Elt F)),
    reshape main_v6989 main_v6990 rfl shapeCasts_S4x1x16_S4x16,
    unary main_v6990 main_v6991 (broadcastInDim S4x1x16 ![0, 2] bcast_S4x16_S4x1x16_0_2 : (⟨S4x16, .f32⟩ : BufTy).Contents (Elt F) → (⟨S4x1x16, .f32⟩ : BufTy).Contents (Elt F)),
    unary main_v6988 main_v6992 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v6991 main_v6993 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6992 main_v6993 main_v6994 (mulf : (⟨S4x256x16, .f32⟩ : BufTy).Contents (Elt F) → (⟨S4x256x16, .f32⟩ : BufTy).Contents (Elt F) → (⟨S4x256x16, .f32⟩ : BufTy).Contents (Elt F)),
    binary main_v6985 main_v6994 main_v6995 (addf : (⟨S4x256x16, .f32⟩ : BufTy).Contents (Elt F) → (⟨S4x256x16, .f32⟩ : BufTy).Contents (Elt F) → (⟨S4x256x16, .f32⟩ : BufTy).Contents (Elt F)),
    unary main_arg3 main_v6996 ((extractStridedSlice S4x1x16 ![0, 349, 0] · slices_S4x512x16_S4x1x16_0_349_0) : (⟨S4x512x16, .f32⟩ : BufTy).Contents (Elt F) → (⟨S4x1x16, .f32⟩ : BufTy).Contents (Elt F)),
    reshape main_v6996 main_v6997 rfl shapeCasts_S4x1x16_S4x16,
    unary main_v6997 main_v6998 (broadcastInDim S4x1x16 ![0, 2] bcast_S4x16_S4x1x16_0_2 : (⟨S4x16, .f32⟩ : BufTy).Contents (Elt F) → (⟨S4x1x16, .f32⟩ : BufTy).Contents (Elt F)),
    unary main_v6998 main_v6999 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v6995 main_v6999 main_v7000 (mulf : (⟨S4x256x16, .f32⟩ : BufTy).Contents (Elt F) → (⟨S4x256x16, .f32⟩ : BufTy).Contents (Elt F) → (⟨S4x256x16, .f32⟩ : BufTy).Contents (Elt F)),
    nullary main_cst_698 (constant S_ .f32 0x00000000#32),
    binary main_v7000 main_cst_698 main_v7001 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_699 (constantI S_ 32 349#32),
    unary main_c_699 main_v7002 (broadcastInDim S1 ![] bcast_S_S1 : (⟨S_, .i32⟩ : BufTy).Contents (Elt F) → (⟨S1, .i32⟩ : BufTy).Contents (Elt F)),
    ternary main_v6983 main_v7002 main_v7001 main_v7003 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps349_ok : (stepOps349 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step349_val (V : Valuation τ sig (Elt Ideal)) :
    after (stepOps349 (F := Ideal)) V (no_index (Proc.devRef .tc main_v6995)) = stepH 349 (by decide) (V (Proc.devRef .tc main_arg0)) (V (Proc.devRef .tc main_v3)) (V (Proc.devRef .tc main_arg2)) (V (Proc.devRef .tc main_v6975))
    ∧ after (stepOps349 (F := Ideal)) V (no_index (Proc.devRef .tc main_v7003)) = stepY 349 (by decide) (V (Proc.devRef .tc main_arg3)) (stepH 349 (by decide) (V (Proc.devRef .tc main_arg0)) (V (Proc.devRef .tc main_v3)) (V (Proc.devRef .tc main_arg2)) (V (Proc.devRef .tc main_v6975))) (V (Proc.devRef .tc main_v6983)) := by
  simp only [stepOps349]
  after_results_simp
  first | exact ⟨rfl, rfl⟩ | fail "value"
/-- Step 350 of the loop: operations 7707 … 7728 of the program. -/
abbrev stepOps350 : List (HloOp τ sig (Elt F)) :=
  [ unary main_v3 main_v7004 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v6995 main_v7004 main_v7005 (mulf : (⟨S4x256x16, .f32⟩ : BufTy).Contents (Elt F) → (⟨S4x256x16, .f32⟩ : BufTy).Contents (Elt F) → (⟨S4x256x16, .f32⟩ : BufTy).Contents (Elt F)),
    unary main_arg0 main_v7006 ((extractStridedSlice S4x1x256 ![0, 350, 0] · slices_S4x512x256_S4x1x256_0_350_0) : (⟨S4x512x256, .f32⟩ : BufTy).Contents (Elt F) → (⟨S4x1x256, .f32⟩ : BufTy).Contents (Elt F)),
    reshape main_v7006 main_v7007 rfl shapeCasts_S4x1x256_S4x256,
    unary main_v7007 main_v7008 (broadcastInDim S4x256x1 ![0, 1] bcast_S4x256_S4x256x1_0_1 : (⟨S4x256, .f32⟩ : BufTy).Contents (Elt F) → (⟨S4x256x1, .f32⟩ : BufTy).Contents (Elt F)),
    unary main_arg2 main_v7009 ((extractStridedSlice S4x1x16 ![0, 350, 0] · slices_S4x512x16_S4x1x16_0_350_0) : (⟨S4x512x16, .f32⟩ : BufTy).Contents (Elt F) → (⟨S4x1x16, .f32⟩ : BufTy).Contents (Elt F)),
    reshape main_v7009 main_v7010 rfl shapeCasts_S4x1x16_S4x16,
    unary main_v7010 main_v7011 (broadcastInDim S4x1x16 ![0, 2] bcast_S4x16_S4x1x16_0_2 : (⟨S4x16, .f32⟩ : BufTy).Contents (Elt F) → (⟨S4x1x16, .f32⟩ : BufTy).Contents (Elt F)),
    unary main_v7008 main_v7012 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7011 main_v7013 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7012 main_v7013 main_v7014 (mulf : (⟨S4x256x16, .f32⟩ : BufTy).Contents (Elt F) → (⟨S4x256x16, .f32⟩ : BufTy).Contents (Elt F) → (⟨S4x256x16, .f32⟩ : BufTy).Contents (Elt F)),
    binary main_v7005 main_v7014 main_v7015 (addf : (⟨S4x256x16, .f32⟩ : BufTy).Contents (Elt F) → (⟨S4x256x16, .f32⟩ : BufTy).Contents (Elt F) → (⟨S4x256x16, .f32⟩ : BufTy).Contents (Elt F)),
    unary main_arg3 main_v7016 ((extractStridedSlice S4x1x16 ![0, 350, 0] · slices_S4x512x16_S4x1x16_0_350_0) : (⟨S4x512x16, .f32⟩ : BufTy).Contents (Elt F) → (⟨S4x1x16, .f32⟩ : BufTy).Contents (Elt F)),
    reshape main_v7016 main_v7017 rfl shapeCasts_S4x1x16_S4x16,
    unary main_v7017 main_v7018 (broadcastInDim S4x1x16 ![0, 2] bcast_S4x16_S4x1x16_0_2 : (⟨S4x16, .f32⟩ : BufTy).Contents (Elt F) → (⟨S4x1x16, .f32⟩ : BufTy).Contents (Elt F)),
    unary main_v7018 main_v7019 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7015 main_v7019 main_v7020 (mulf : (⟨S4x256x16, .f32⟩ : BufTy).Contents (Elt F) → (⟨S4x256x16, .f32⟩ : BufTy).Contents (Elt F) → (⟨S4x256x16, .f32⟩ : BufTy).Contents (Elt F)),
    nullary main_cst_700 (constant S_ .f32 0x00000000#32),
    binary main_v7020 main_cst_700 main_v7021 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_701 (constantI S_ 32 350#32),
    unary main_c_701 main_v7022 (broadcastInDim S1 ![] bcast_S_S1 : (⟨S_, .i32⟩ : BufTy).Contents (Elt F) → (⟨S1, .i32⟩ : BufTy).Contents (Elt F)),
    ternary main_v7003 main_v7022 main_v7021 main_v7023 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps350_ok : (stepOps350 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step350_val (V : Valuation τ sig (Elt Ideal)) :
    after (stepOps350 (F := Ideal)) V (no_index (Proc.devRef .tc main_v7015)) = stepH 350 (by decide) (V (Proc.devRef .tc main_arg0)) (V (Proc.devRef .tc main_v3)) (V (Proc.devRef .tc main_arg2)) (V (Proc.devRef .tc main_v6995))
    ∧ after (stepOps350 (F := Ideal)) V (no_index (Proc.devRef .tc main_v7023)) = stepY 350 (by decide) (V (Proc.devRef .tc main_arg3)) (stepH 350 (by decide) (V (Proc.devRef .tc main_arg0)) (V (Proc.devRef .tc main_v3)) (V (Proc.devRef .tc main_arg2)) (V (Proc.devRef .tc main_v6995))) (V (Proc.devRef .tc main_v7003)) := by
  simp only [stepOps350]
  after_results_simp
  first | exact ⟨rfl, rfl⟩ | fail "value"
/-- Step 351 of the loop: operations 7729 … 7750 of the program. -/
abbrev stepOps351 : List (HloOp τ sig (Elt F)) :=
  [ unary main_v3 main_v7024 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7015 main_v7024 main_v7025 (mulf : (⟨S4x256x16, .f32⟩ : BufTy).Contents (Elt F) → (⟨S4x256x16, .f32⟩ : BufTy).Contents (Elt F) → (⟨S4x256x16, .f32⟩ : BufTy).Contents (Elt F)),
    unary main_arg0 main_v7026 ((extractStridedSlice S4x1x256 ![0, 351, 0] · slices_S4x512x256_S4x1x256_0_351_0) : (⟨S4x512x256, .f32⟩ : BufTy).Contents (Elt F) → (⟨S4x1x256, .f32⟩ : BufTy).Contents (Elt F)),
    reshape main_v7026 main_v7027 rfl shapeCasts_S4x1x256_S4x256,
    unary main_v7027 main_v7028 (broadcastInDim S4x256x1 ![0, 1] bcast_S4x256_S4x256x1_0_1 : (⟨S4x256, .f32⟩ : BufTy).Contents (Elt F) → (⟨S4x256x1, .f32⟩ : BufTy).Contents (Elt F)),
    unary main_arg2 main_v7029 ((extractStridedSlice S4x1x16 ![0, 351, 0] · slices_S4x512x16_S4x1x16_0_351_0) : (⟨S4x512x16, .f32⟩ : BufTy).Contents (Elt F) → (⟨S4x1x16, .f32⟩ : BufTy).Contents (Elt F)),
    reshape main_v7029 main_v7030 rfl shapeCasts_S4x1x16_S4x16,
    unary main_v7030 main_v7031 (broadcastInDim S4x1x16 ![0, 2] bcast_S4x16_S4x1x16_0_2 : (⟨S4x16, .f32⟩ : BufTy).Contents (Elt F) → (⟨S4x1x16, .f32⟩ : BufTy).Contents (Elt F)),
    unary main_v7028 main_v7032 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7031 main_v7033 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7032 main_v7033 main_v7034 (mulf : (⟨S4x256x16, .f32⟩ : BufTy).Contents (Elt F) → (⟨S4x256x16, .f32⟩ : BufTy).Contents (Elt F) → (⟨S4x256x16, .f32⟩ : BufTy).Contents (Elt F)),
    binary main_v7025 main_v7034 main_v7035 (addf : (⟨S4x256x16, .f32⟩ : BufTy).Contents (Elt F) → (⟨S4x256x16, .f32⟩ : BufTy).Contents (Elt F) → (⟨S4x256x16, .f32⟩ : BufTy).Contents (Elt F)),
    unary main_arg3 main_v7036 ((extractStridedSlice S4x1x16 ![0, 351, 0] · slices_S4x512x16_S4x1x16_0_351_0) : (⟨S4x512x16, .f32⟩ : BufTy).Contents (Elt F) → (⟨S4x1x16, .f32⟩ : BufTy).Contents (Elt F)),
    reshape main_v7036 main_v7037 rfl shapeCasts_S4x1x16_S4x16,
    unary main_v7037 main_v7038 (broadcastInDim S4x1x16 ![0, 2] bcast_S4x16_S4x1x16_0_2 : (⟨S4x16, .f32⟩ : BufTy).Contents (Elt F) → (⟨S4x1x16, .f32⟩ : BufTy).Contents (Elt F)),
    unary main_v7038 main_v7039 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7035 main_v7039 main_v7040 (mulf : (⟨S4x256x16, .f32⟩ : BufTy).Contents (Elt F) → (⟨S4x256x16, .f32⟩ : BufTy).Contents (Elt F) → (⟨S4x256x16, .f32⟩ : BufTy).Contents (Elt F)),
    nullary main_cst_702 (constant S_ .f32 0x00000000#32),
    binary main_v7040 main_cst_702 main_v7041 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_703 (constantI S_ 32 351#32),
    unary main_c_703 main_v7042 (broadcastInDim S1 ![] bcast_S_S1 : (⟨S_, .i32⟩ : BufTy).Contents (Elt F) → (⟨S1, .i32⟩ : BufTy).Contents (Elt F)),
    ternary main_v7023 main_v7042 main_v7041 main_v7043 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps351_ok : (stepOps351 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step351_val (V : Valuation τ sig (Elt Ideal)) :
    after (stepOps351 (F := Ideal)) V (no_index (Proc.devRef .tc main_v7035)) = stepH 351 (by decide) (V (Proc.devRef .tc main_arg0)) (V (Proc.devRef .tc main_v3)) (V (Proc.devRef .tc main_arg2)) (V (Proc.devRef .tc main_v7015))
    ∧ after (stepOps351 (F := Ideal)) V (no_index (Proc.devRef .tc main_v7043)) = stepY 351 (by decide) (V (Proc.devRef .tc main_arg3)) (stepH 351 (by decide) (V (Proc.devRef .tc main_arg0)) (V (Proc.devRef .tc main_v3)) (V (Proc.devRef .tc main_arg2)) (V (Proc.devRef .tc main_v7015))) (V (Proc.devRef .tc main_v7023)) := by
  simp only [stepOps351]
  after_results_simp
  first | exact ⟨rfl, rfl⟩ | fail "value"

end Cert.ReferenceIdeal.RefRun

end
-- ==== Proof.RefTableStep22.lean ====
/-
  Steps 352 … 367 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 352 of the loop: operations 7751 … 7772 of the program. -/
abbrev stepOps352 : List (HloOp τ sig (Elt F)) :=
  [ unary main_v3 main_v7044 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7035 main_v7044 main_v7045 (mulf : (⟨S4x256x16, .f32⟩ : BufTy).Contents (Elt F) → (⟨S4x256x16, .f32⟩ : BufTy).Contents (Elt F) → (⟨S4x256x16, .f32⟩ : BufTy).Contents (Elt F)),
    unary main_arg0 main_v7046 ((extractStridedSlice S4x1x256 ![0, 352, 0] · slices_S4x512x256_S4x1x256_0_352_0) : (⟨S4x512x256, .f32⟩ : BufTy).Contents (Elt F) → (⟨S4x1x256, .f32⟩ : BufTy).Contents (Elt F)),
    reshape main_v7046 main_v7047 rfl shapeCasts_S4x1x256_S4x256,
    unary main_v7047 main_v7048 (broadcastInDim S4x256x1 ![0, 1] bcast_S4x256_S4x256x1_0_1 : (⟨S4x256, .f32⟩ : BufTy).Contents (Elt F) → (⟨S4x256x1, .f32⟩ : BufTy).Contents (Elt F)),
    unary main_arg2 main_v7049 ((extractStridedSlice S4x1x16 ![0, 352, 0] · slices_S4x512x16_S4x1x16_0_352_0) : (⟨S4x512x16, .f32⟩ : BufTy).Contents (Elt F) → (⟨S4x1x16, .f32⟩ : BufTy).Contents (Elt F)),
    reshape main_v7049 main_v7050 rfl shapeCasts_S4x1x16_S4x16,
    unary main_v7050 main_v7051 (broadcastInDim S4x1x16 ![0, 2] bcast_S4x16_S4x1x16_0_2 : (⟨S4x16, .f32⟩ : BufTy).Contents (Elt F) → (⟨S4x1x16, .f32⟩ : BufTy).Contents (Elt F)),
    unary main_v7048 main_v7052 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7051 main_v7053 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7052 main_v7053 main_v7054 (mulf : (⟨S4x256x16, .f32⟩ : BufTy).Contents (Elt F) → (⟨S4x256x16, .f32⟩ : BufTy).Contents (Elt F) → (⟨S4x256x16, .f32⟩ : BufTy).Contents (Elt F)),
    binary main_v7045 main_v7054 main_v7055 (addf : (⟨S4x256x16, .f32⟩ : BufTy).Contents (Elt F) → (⟨S4x256x16, .f32⟩ : BufTy).Contents (Elt F) → (⟨S4x256x16, .f32⟩ : BufTy).Contents (Elt F)),
    unary main_arg3 main_v7056 ((extractStridedSlice S4x1x16 ![0, 352, 0] · slices_S4x512x16_S4x1x16_0_352_0) : (⟨S4x512x16, .f32⟩ : BufTy).Contents (Elt F) → (⟨S4x1x16, .f32⟩ : BufTy).Contents (Elt F)),
    reshape main_v7056 main_v7057 rfl shapeCasts_S4x1x16_S4x16,
    unary main_v7057 main_v7058 (broadcastInDim S4x1x16 ![0, 2] bcast_S4x16_S4x1x16_0_2 : (⟨S4x16, .f32⟩ : BufTy).Contents (Elt F) → (⟨S4x1x16, .f32⟩ : BufTy).Contents (Elt F)),
    unary main_v7058 main_v7059 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7055 main_v7059 main_v7060 (mulf : (⟨S4x256x16, .f32⟩ : BufTy).Contents (Elt F) → (⟨S4x256x16, .f32⟩ : BufTy).Contents (Elt F) → (⟨S4x256x16, .f32⟩ : BufTy).Contents (Elt F)),
    nullary main_cst_704 (constant S_ .f32 0x00000000#32),
    binary main_v7060 main_cst_704 main_v7061 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_705 (constantI S_ 32 352#32),
    unary main_c_705 main_v7062 (broadcastInDim S1 ![] bcast_S_S1 : (⟨S_, .i32⟩ : BufTy).Contents (Elt F) → (⟨S1, .i32⟩ : BufTy).Contents (Elt F)),
    ternary main_v7043 main_v7062 main_v7061 main_v7063 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps352_ok : (stepOps352 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step352_val (V : Valuation τ sig (Elt Ideal)) :
    after (stepOps352 (F := Ideal)) V (no_index (Proc.devRef .tc main_v7055)) = stepH 352 (by decide) (V (Proc.devRef .tc main_arg0)) (V (Proc.devRef .tc main_v3)) (V (Proc.devRef .tc main_arg2)) (V (Proc.devRef .tc main_v7035))
    ∧ after (stepOps352 (F := Ideal)) V (no_index (Proc.devRef .tc main_v7063)) = stepY 352 (by decide) (V (Proc.devRef .tc main_arg3)) (stepH 352 (by decide) (V (Proc.devRef .tc main_arg0)) (V (Proc.devRef .tc main_v3)) (V (Proc.devRef .tc main_arg2)) (V (Proc.devRef .tc main_v7035))) (V (Proc.devRef .tc main_v7043)) := by
  simp only [stepOps352]
  after_results_simp
  first | exact ⟨rfl, rfl⟩ | fail "value"
/-- Step 353 of the loop: operations 7773 … 7794 of the program. -/
abbrev stepOps353 : List (HloOp τ sig (Elt F)) :=
  [ unary main_v3 main_v7064 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7055 main_v7064 main_v7065 (mulf : (⟨S4x256x16, .f32⟩ : BufTy).Contents (Elt F) → (⟨S4x256x16, .f32⟩ : BufTy).Contents (Elt F) → (⟨S4x256x16, .f32⟩ : BufTy).Contents (Elt F)),
    unary main_arg0 main_v7066 ((extractStridedSlice S4x1x256 ![0, 353, 0] · slices_S4x512x256_S4x1x256_0_353_0) : (⟨S4x512x256, .f32⟩ : BufTy).Contents (Elt F) → (⟨S4x1x256, .f32⟩ : BufTy).Contents (Elt F)),
    reshape main_v7066 main_v7067 rfl shapeCasts_S4x1x256_S4x256,
    unary main_v7067 main_v7068 (broadcastInDim S4x256x1 ![0, 1] bcast_S4x256_S4x256x1_0_1 : (⟨S4x256, .f32⟩ : BufTy).Contents (Elt F) → (⟨S4x256x1, .f32⟩ : BufTy).Contents (Elt F)),
    unary main_arg2 main_v7069 ((extractStridedSlice S4x1x16 ![0, 353, 0] · slices_S4x512x16_S4x1x16_0_353_0) : (⟨S4x512x16, .f32⟩ : BufTy).Contents (Elt F) → (⟨S4x1x16, .f32⟩ : BufTy).Contents (Elt F)),
    reshape main_v7069 main_v7070 rfl shapeCasts_S4x1x16_S4x16,
    unary main_v7070 main_v7071 (broadcastInDim S4x1x16 ![0, 2] bcast_S4x16_S4x1x16_0_2 : (⟨S4x16, .f32⟩ : BufTy).Contents (Elt F) → (⟨S4x1x16, .f32⟩ : BufTy).Contents (Elt F)),
    unary main_v7068 main_v7072 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7071 main_v7073 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7072 main_v7073 main_v7074 (mulf : (⟨S4x256x16, .f32⟩ : BufTy).Contents (Elt F) → (⟨S4x256x16, .f32⟩ : BufTy).Contents (Elt F) → (⟨S4x256x16, .f32⟩ : BufTy).Contents (Elt F)),
    binary main_v7065 main_v7074 main_v7075 (addf : (⟨S4x256x16, .f32⟩ : BufTy).Contents (Elt F) → (⟨S4x256x16, .f32⟩ : BufTy).Contents (Elt F) → (⟨S4x256x16, .f32⟩ : BufTy).Contents (Elt F)),
    unary main_arg3 main_v7076 ((extractStridedSlice S4x1x16 ![0, 353, 0] · slices_S4x512x16_S4x1x16_0_353_0) : (⟨S4x512x16, .f32⟩ : BufTy).Contents (Elt F) → (⟨S4x1x16, .f32⟩ : BufTy).Contents (Elt F)),
    reshape main_v7076 main_v7077 rfl shapeCasts_S4x1x16_S4x16,
    unary main_v7077 main_v7078 (broadcastInDim S4x1x16 ![0, 2] bcast_S4x16_S4x1x16_0_2 : (⟨S4x16, .f32⟩ : BufTy).Contents (Elt F) → (⟨S4x1x16, .f32⟩ : BufTy).Contents (Elt F)),
    unary main_v7078 main_v7079 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7075 main_v7079 main_v7080 (mulf : (⟨S4x256x16, .f32⟩ : BufTy).Contents (Elt F) → (⟨S4x256x16, .f32⟩ : BufTy).Contents (Elt F) → (⟨S4x256x16, .f32⟩ : BufTy).Contents (Elt F)),
    nullary main_cst_706 (constant S_ .f32 0x00000000#32),
    binary main_v7080 main_cst_706 main_v7081 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_707 (constantI S_ 32 353#32),
    unary main_c_707 main_v7082 (broadcastInDim S1 ![] bcast_S_S1 : (⟨S_, .i32⟩ : BufTy).Contents (Elt F) → (⟨S1, .i32⟩ : BufTy).Contents (Elt F)),
    ternary main_v7063 main_v7082 main_v7081 main_v7083 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps353_ok : (stepOps353 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step353_val (V : Valuation τ sig (Elt Ideal)) :
    after (stepOps353 (F := Ideal)) V (no_index (Proc.devRef .tc main_v7075)) = stepH 353 (by decide) (V (Proc.devRef .tc main_arg0)) (V (Proc.devRef .tc main_v3)) (V (Proc.devRef .tc main_arg2)) (V (Proc.devRef .tc main_v7055))
    ∧ after (stepOps353 (F := Ideal)) V (no_index (Proc.devRef .tc main_v7083)) = stepY 353 (by decide) (V (Proc.devRef .tc main_arg3)) (stepH 353 (by decide) (V (Proc.devRef .tc main_arg0)) (V (Proc.devRef .tc main_v3)) (V (Proc.devRef .tc main_arg2)) (V (Proc.devRef .tc main_v7055))) (V (Proc.devRef .tc main_v7063)) := by
  simp only [stepOps353]
  after_results_simp
  first | exact ⟨rfl, rfl⟩ | fail "value"
/-- Step 354 of the loop: operations 7795 … 7816 of the program. -/
abbrev stepOps354 : List (HloOp τ sig (Elt F)) :=
  [ unary main_v3 main_v7084 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7075 main_v7084 main_v7085 (mulf : (⟨S4x256x16, .f32⟩ : BufTy).Contents (Elt F) → (⟨S4x256x16, .f32⟩ : BufTy).Contents (Elt F) → (⟨S4x256x16, .f32⟩ : BufTy).Contents (Elt F)),
    unary main_arg0 main_v7086 ((extractStridedSlice S4x1x256 ![0, 354, 0] · slices_S4x512x256_S4x1x256_0_354_0) : (⟨S4x512x256, .f32⟩ : BufTy).Contents (Elt F) → (⟨S4x1x256, .f32⟩ : BufTy).Contents (Elt F)),
    reshape main_v7086 main_v7087 rfl shapeCasts_S4x1x256_S4x256,
    unary main_v7087 main_v7088 (broadcastInDim S4x256x1 ![0, 1] bcast_S4x256_S4x256x1_0_1 : (⟨S4x256, .f32⟩ : BufTy).Contents (Elt F) → (⟨S4x256x1, .f32⟩ : BufTy).Contents (Elt F)),
    unary main_arg2 main_v7089 ((extractStridedSlice S4x1x16 ![0, 354, 0] · slices_S4x512x16_S4x1x16_0_354_0) : (⟨S4x512x16, .f32⟩ : BufTy).Contents (Elt F) → (⟨S4x1x16, .f32⟩ : BufTy).Contents (Elt F)),
    reshape main_v7089 main_v7090 rfl shapeCasts_S4x1x16_S4x16,
    unary main_v7090 main_v7091 (broadcastInDim S4x1x16 ![0, 2] bcast_S4x16_S4x1x16_0_2 : (⟨S4x16, .f32⟩ : BufTy).Contents (Elt F) → (⟨S4x1x16, .f32⟩ : BufTy).Contents (Elt F)),
    unary main_v7088 main_v7092 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7091 main_v7093 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7092 main_v7093 main_v7094 (mulf : (⟨S4x256x16, .f32⟩ : BufTy).Contents (Elt F) → (⟨S4x256x16, .f32⟩ : BufTy).Contents (Elt F) → (⟨S4x256x16, .f32⟩ : BufTy).Contents (Elt F)),
    binary main_v7085 main_v7094 main_v7095 (addf : (⟨S4x256x16, .f32⟩ : BufTy).Contents (Elt F) → (⟨S4x256x16, .f32⟩ : BufTy).Contents (Elt F) → (⟨S4x256x16, .f32⟩ : BufTy).Contents (Elt F)),
    unary main_arg3 main_v7096 ((extractStridedSlice S4x1x16 ![0, 354, 0] · slices_S4x512x16_S4x1x16_0_354_0) : (⟨S4x512x16, .f32⟩ : BufTy).Contents (Elt F) → (⟨S4x1x16, .f32⟩ : BufTy).Contents (Elt F)),
    reshape main_v7096 main_v7097 rfl shapeCasts_S4x1x16_S4x16,
    unary main_v7097 main_v7098 (broadcastInDim S4x1x16 ![0, 2] bcast_S4x16_S4x1x16_0_2 : (⟨S4x16, .f32⟩ : BufTy).Contents (Elt F) → (⟨S4x1x16, .f32⟩ : BufTy).Contents (Elt F)),
    unary main_v7098 main_v7099 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7095 main_v7099 main_v7100 (mulf : (⟨S4x256x16, .f32⟩ : BufTy).Contents (Elt F) → (⟨S4x256x16, .f32⟩ : BufTy).Contents (Elt F) → (⟨S4x256x16, .f32⟩ : BufTy).Contents (Elt F)),
    nullary main_cst_708 (constant S_ .f32 0x00000000#32),
    binary main_v7100 main_cst_708 main_v7101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_709 (constantI S_ 32 354#32),
    unary main_c_709 main_v7102 (broadcastInDim S1 ![] bcast_S_S1 : (⟨S_, .i32⟩ : BufTy).Contents (Elt F) → (⟨S1, .i32⟩ : BufTy).Contents (Elt F)),
    ternary main_v7083 main_v7102 main_v7101 main_v7103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps354_ok : (stepOps354 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step354_val (V : Valuation τ sig (Elt Ideal)) :
    after (stepOps354 (F := Ideal)) V (no_index (Proc.devRef .tc main_v7095)) = stepH 354 (by decide) (V (Proc.devRef .tc main_arg0)) (V (Proc.devRef .tc main_v3)) (V (Proc.devRef .tc main_arg2)) (V (Proc.devRef .tc main_v7075))
    ∧ after (stepOps354 (F := Ideal)) V (no_index (Proc.devRef .tc main_v7103)) = stepY 354 (by decide) (V (Proc.devRef .tc main_arg3)) (stepH 354 (by decide) (V (Proc.devRef .tc main_arg0)) (V (Proc.devRef .tc main_v3)) (V (Proc.devRef .tc main_arg2)) (V (Proc.devRef .tc main_v7075))) (V (Proc.devRef .tc main_v7083)) := by
  simp only [stepOps354]
  after_results_simp
  first | exact ⟨rfl, rfl⟩ | fail "value"
/-- Step 355 of the loop: operations 7817 … 7838 of the program. -/
abbrev stepOps355 : List (HloOp τ sig (Elt F)) :=
  [ unary main_v3 main_v7104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7095 main_v7104 main_v7105 (mulf : (⟨S4x256x16, .f32⟩ : BufTy).Contents (Elt F) → (⟨S4x256x16, .f32⟩ : BufTy).Contents (Elt F) → (⟨S4x256x16, .f32⟩ : BufTy).Contents (Elt F)),
    unary main_arg0 main_v7106 ((extractStridedSlice S4x1x256 ![0, 355, 0] · slices_S4x512x256_S4x1x256_0_355_0) : (⟨S4x512x256, .f32⟩ : BufTy).Contents (Elt F) → (⟨S4x1x256, .f32⟩ : BufTy).Contents (Elt F)),
    reshape main_v7106 main_v7107 rfl shapeCasts_S4x1x256_S4x256,
    unary main_v7107 main_v7108 (broadcastInDim S4x256x1 ![0, 1] bcast_S4x256_S4x256x1_0_1 : (⟨S4x256, .f32⟩ : BufTy).Contents (Elt F) → (⟨S4x256x1, .f32⟩ : BufTy).Contents (Elt F)),
    unary main_arg2 main_v7109 ((extractStridedSlice S4x1x16 ![0, 355, 0] · slices_S4x512x16_S4x1x16_0_355_0) : (⟨S4x512x16, .f32⟩ : BufTy).Contents (Elt F) → (⟨S4x1x16, .f32⟩ : BufTy).Contents (Elt F)),
    reshape main_v7109 main_v7110 rfl shapeCasts_S4x1x16_S4x16,
    unary main_v7110 main_v7111 (broadcastInDim S4x1x16 ![0, 2] bcast_S4x16_S4x1x16_0_2 : (⟨S4x16, .f32⟩ : BufTy).Contents (Elt F) → (⟨S4x1x16, .f32⟩ : BufTy).Contents (Elt F)),
    unary main_v7108 main_v7112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7111 main_v7113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7112 main_v7113 main_v7114 (mulf : (⟨S4x256x16, .f32⟩ : BufTy).Contents (Elt F) → (⟨S4x256x16, .f32⟩ : BufTy).Contents (Elt F) → (⟨S4x256x16, .f32⟩ : BufTy).Contents (Elt F)),
    binary main_v7105 main_v7114 main_v7115 (addf : (⟨S4x256x16, .f32⟩ : BufTy).Contents (Elt F) → (⟨S4x256x16, .f32⟩ : BufTy).Contents (Elt F) → (⟨S4x256x16, .f32⟩ : BufTy).Contents (Elt F)),
    unary main_arg3 main_v7116 ((extractStridedSlice S4x1x16 ![0, 355, 0] · slices_S4x512x16_S4x1x16_0_355_0) : (⟨S4x512x16, .f32⟩ : BufTy).Contents (Elt F) → (⟨S4x1x16, .f32⟩ : BufTy).Contents (Elt F)),
    reshape main_v7116 main_v7117 rfl shapeCasts_S4x1x16_S4x16,
    unary main_v7117 main_v7118 (broadcastInDim S4x1x16 ![0, 2] bcast_S4x16_S4x1x16_0_2 : (⟨S4x16, .f32⟩ : BufTy).Contents (Elt F) → (⟨S4x1x16, .f32⟩ : BufTy).Contents (Elt F)),
    unary main_v7118 main_v7119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7115 main_v7119 main_v7120 (mulf : (⟨S4x256x16, .f32⟩ : BufTy).Contents (Elt F) → (⟨S4x256x16, .f32⟩ : BufTy).Contents (Elt F) → (⟨S4x256x16, .f32⟩ : BufTy).Contents (Elt F)),
    nullary main_cst_710 (constant S_ .f32 0x00000000#32),
    binary main_v7120 main_cst_710 main_v7121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_711 (constantI S_ 32 355#32),
    unary main_c_711 main_v7122 (broadcastInDim S1 ![] bcast_S_S1 : (⟨S_, .i32⟩ : BufTy).Contents (Elt F) → (⟨S1, .i32⟩ : BufTy).Contents (Elt F)),
    ternary main_v7103 main_v7122 main_v7121 main_v7123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps355_ok : (stepOps355 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step355_val (V : Valuation τ sig (Elt Ideal)) :
    after (stepOps355 (F := Ideal)) V (no_index (Proc.devRef .tc main_v7115)) = stepH 355 (by decide) (V (Proc.devRef .tc main_arg0)) (V (Proc.devRef .tc main_v3)) (V (Proc.devRef .tc main_arg2)) (V (Proc.devRef .tc main_v7095))
    ∧ after (stepOps355 (F := Ideal)) V (no_index (Proc.devRef .tc main_v7123)) = stepY 355 (by decide) (V (Proc.devRef .tc main_arg3)) (stepH 355 (by decide) (V (Proc.devRef .tc main_arg0)) (V (Proc.devRef .tc main_v3)) (V (Proc.devRef .tc main_arg2)) (V (Proc.devRef .tc main_v7095))) (V (Proc.devRef .tc main_v7103)) := by
  simp only [stepOps355]
  after_results_simp
  first | exact ⟨rfl, rfl⟩ | fail "value"
/-- Step 356 of the loop: operations 7839 … 7860 of the program. -/
abbrev stepOps356 : List (HloOp τ sig (Elt F)) :=
  [ unary main_v3 main_v7124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7115 main_v7124 main_v7125 (mulf : (⟨S4x256x16, .f32⟩ : BufTy).Contents (Elt F) → (⟨S4x256x16, .f32⟩ : BufTy).Contents (Elt F) → (⟨S4x256x16, .f32⟩ : BufTy).Contents (Elt F)),
    unary main_arg0 main_v7126 ((extractStridedSlice S4x1x256 ![0, 356, 0] · slices_S4x512x256_S4x1x256_0_356_0) : (⟨S4x512x256, .f32⟩ : BufTy).Contents (Elt F) → (⟨S4x1x256, .f32⟩ : BufTy).Contents (Elt F)),
    reshape main_v7126 main_v7127 rfl shapeCasts_S4x1x256_S4x256,
    unary main_v7127 main_v7128 (broadcastInDim S4x256x1 ![0, 1] bcast_S4x256_S4x256x1_0_1 : (⟨S4x256, .f32⟩ : BufTy).Contents (Elt F) → (⟨S4x256x1, .f32⟩ : BufTy).Contents (Elt F)),
    unary main_arg2 main_v7129 ((extractStridedSlice S4x1x16 ![0, 356, 0] · slices_S4x512x16_S4x1x16_0_356_0) : (⟨S4x512x16, .f32⟩ : BufTy).Contents (Elt F) → (⟨S4x1x16, .f32⟩ : BufTy).Contents (Elt F)),
    reshape main_v7129 main_v7130 rfl shapeCasts_S4x1x16_S4x16,
    unary main_v7130 main_v7131 (broadcastInDim S4x1x16 ![0, 2] bcast_S4x16_S4x1x16_0_2 : (⟨S4x16, .f32⟩ : BufTy).Contents (Elt F) → (⟨S4x1x16, .f32⟩ : BufTy).Contents (Elt F)),
    unary main_v7128 main_v7132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7131 main_v7133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7132 main_v7133 main_v7134 (mulf : (⟨S4x256x16, .f32⟩ : BufTy).Contents (Elt F) → (⟨S4x256x16, .f32⟩ : BufTy).Contents (Elt F) → (⟨S4x256x16, .f32⟩ : BufTy).Contents (Elt F)),
    binary main_v7125 main_v7134 main_v7135 (addf : (⟨S4x256x16, .f32⟩ : BufTy).Contents (Elt F) → (⟨S4x256x16, .f32⟩ : BufTy).Contents (Elt F) → (⟨S4x256x16, .f32⟩ : BufTy).Contents (Elt F)),
    unary main_arg3 main_v7136 ((extractStridedSlice S4x1x16 ![0, 356, 0] · slices_S4x512x16_S4x1x16_0_356_0) : (⟨S4x512x16, .f32⟩ : BufTy).Contents (Elt F) → (⟨S4x1x16, .f32⟩ : BufTy).Contents (Elt F)),
    reshape main_v7136 main_v7137 rfl shapeCasts_S4x1x16_S4x16,
    unary main_v7137 main_v7138 (broadcastInDim S4x1x16 ![0, 2] bcast_S4x16_S4x1x16_0_2 : (⟨S4x16, .f32⟩ : BufTy).Contents (Elt F) → (⟨S4x1x16, .f32⟩ : BufTy).Contents (Elt F)),
    unary main_v7138 main_v7139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7135 main_v7139 main_v7140 (mulf : (⟨S4x256x16, .f32⟩ : BufTy).Contents (Elt F) → (⟨S4x256x16, .f32⟩ : BufTy).Contents (Elt F) → (⟨S4x256x16, .f32⟩ : BufTy).Contents (Elt F)),
    nullary main_cst_712 (constant S_ .f32 0x00000000#32),
    binary main_v7140 main_cst_712 main_v7141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_713 (constantI S_ 32 356#32),
    unary main_c_713 main_v7142 (broadcastInDim S1 ![] bcast_S_S1 : (⟨S_, .i32⟩ : BufTy).Contents (Elt F) → (⟨S1, .i32⟩ : BufTy).Contents (Elt F)),
    ternary main_v7123 main_v7142 main_v7141 main_v7143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps356_ok : (stepOps356 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step356_val (V : Valuation τ sig (Elt Ideal)) :
    after (stepOps356 (F := Ideal)) V (no_index (Proc.devRef .tc main_v7135)) = stepH 356 (by decide) (V (Proc.devRef .tc main_arg0)) (V (Proc.devRef .tc main_v3)) (V (Proc.devRef .tc main_arg2)) (V (Proc.devRef .tc main_v7115))
    ∧ after (stepOps356 (F := Ideal)) V (no_index (Proc.devRef .tc main_v7143)) = stepY 356 (by decide) (V (Proc.devRef .tc main_arg3)) (stepH 356 (by decide) (V (Proc.devRef .tc main_arg0)) (V (Proc.devRef .tc main_v3)) (V (Proc.devRef .tc main_arg2)) (V (Proc.devRef .tc main_v7115))) (V (Proc.devRef .tc main_v7123)) := by
  simp only [stepOps356]
  after_results_simp
  first | exact ⟨rfl, rfl⟩ | fail "value"
/-- Step 357 of the loop: operations 7861 … 7882 of the program. -/
abbrev stepOps357 : List (HloOp τ sig (Elt F)) :=
  [ unary main_v3 main_v7144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7135 main_v7144 main_v7145 (mulf : (⟨S4x256x16, .f32⟩ : BufTy).Contents (Elt F) → (⟨S4x256x16, .f32⟩ : BufTy).Contents (Elt F) → (⟨S4x256x16, .f32⟩ : BufTy).Contents (Elt F)),
    unary main_arg0 main_v7146 ((extractStridedSlice S4x1x256 ![0, 357, 0] · slices_S4x512x256_S4x1x256_0_357_0) : (⟨S4x512x256, .f32⟩ : BufTy).Contents (Elt F) → (⟨S4x1x256, .f32⟩ : BufTy).Contents (Elt F)),
    reshape main_v7146 main_v7147 rfl shapeCasts_S4x1x256_S4x256,
    unary main_v7147 main_v7148 (broadcastInDim S4x256x1 ![0, 1] bcast_S4x256_S4x256x1_0_1 : (⟨S4x256, .f32⟩ : BufTy).Contents (Elt F) → (⟨S4x256x1, .f32⟩ : BufTy).Contents (Elt F)),
    unary main_arg2 main_v7149 ((extractStridedSlice S4x1x16 ![0, 357, 0] · slices_S4x512x16_S4x1x16_0_357_0) : (⟨S4x512x16, .f32⟩ : BufTy).Contents (Elt F) → (⟨S4x1x16, .f32⟩ : BufTy).Contents (Elt F)),
    reshape main_v7149 main_v7150 rfl shapeCasts_S4x1x16_S4x16,
    unary main_v7150 main_v7151 (broadcastInDim S4x1x16 ![0, 2] bcast_S4x16_S4x1x16_0_2 : (⟨S4x16, .f32⟩ : BufTy).Contents (Elt F) → (⟨S4x1x16, .f32⟩ : BufTy).Contents (Elt F)),
    unary main_v7148 main_v7152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7151 main_v7153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7152 main_v7153 main_v7154 (mulf : (⟨S4x256x16, .f32⟩ : BufTy).Contents (Elt F) → (⟨S4x256x16, .f32⟩ : BufTy).Contents (Elt F) → (⟨S4x256x16, .f32⟩ : BufTy).Contents (Elt F)),
    binary main_v7145 main_v7154 main_v7155 (addf : (⟨S4x256x16, .f32⟩ : BufTy).Contents (Elt F) → (⟨S4x256x16, .f32⟩ : BufTy).Contents (Elt F) → (⟨S4x256x16, .f32⟩ : BufTy).Contents (Elt F)),
    unary main_arg3 main_v7156 ((extractStridedSlice S4x1x16 ![0, 357, 0] · slices_S4x512x16_S4x1x16_0_357_0) : (⟨S4x512x16, .f32⟩ : BufTy).Contents (Elt F) → (⟨S4x1x16, .f32⟩ : BufTy).Contents (Elt F)),
    reshape main_v7156 main_v7157 rfl shapeCasts_S4x1x16_S4x16,
    unary main_v7157 main_v7158 (broadcastInDim S4x1x16 ![0, 2] bcast_S4x16_S4x1x16_0_2 : (⟨S4x16, .f32⟩ : BufTy).Contents (Elt F) → (⟨S4x1x16, .f32⟩ : BufTy).Contents (Elt F)),
    unary main_v7158 main_v7159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7155 main_v7159 main_v7160 (mulf : (⟨S4x256x16, .f32⟩ : BufTy).Contents (Elt F) → (⟨S4x256x16, .f32⟩ : BufTy).Contents (Elt F) → (⟨S4x256x16, .f32⟩ : BufTy).Contents (Elt F)),
    nullary main_cst_714 (constant S_ .f32 0x00000000#32),
    binary main_v7160 main_cst_714 main_v7161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_715 (constantI S_ 32 357#32),
    unary main_c_715 main_v7162 (broadcastInDim S1 ![] bcast_S_S1 : (⟨S_, .i32⟩ : BufTy).Contents (Elt F) → (⟨S1, .i32⟩ : BufTy).Contents (Elt F)),
    ternary main_v7143 main_v7162 main_v7161 main_v7163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps357_ok : (stepOps357 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step357_val (V : Valuation τ sig (Elt Ideal)) :
    after (stepOps357 (F := Ideal)) V (no_index (Proc.devRef .tc main_v7155)) = stepH 357 (by decide) (V (Proc.devRef .tc main_arg0)) (V (Proc.devRef .tc main_v3)) (V (Proc.devRef .tc main_arg2)) (V (Proc.devRef .tc main_v7135))
    ∧ after (stepOps357 (F := Ideal)) V (no_index (Proc.devRef .tc main_v7163)) = stepY 357 (by decide) (V (Proc.devRef .tc main_arg3)) (stepH 357 (by decide) (V (Proc.devRef .tc main_arg0)) (V (Proc.devRef .tc main_v3)) (V (Proc.devRef .tc main_arg2)) (V (Proc.devRef .tc main_v7135))) (V (Proc.devRef .tc main_v7143)) := by
  simp only [stepOps357]
  after_results_simp
  first | exact ⟨rfl, rfl⟩ | fail "value"
/-- Step 358 of the loop: operations 7883 … 7904 of the program. -/
abbrev stepOps358 : List (HloOp τ sig (Elt F)) :=
  [ unary main_v3 main_v7164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7155 main_v7164 main_v7165 (mulf : (⟨S4x256x16, .f32⟩ : BufTy).Contents (Elt F) → (⟨S4x256x16, .f32⟩ : BufTy).Contents (Elt F) → (⟨S4x256x16, .f32⟩ : BufTy).Contents (Elt F)),
    unary main_arg0 main_v7166 ((extractStridedSlice S4x1x256 ![0, 358, 0] · slices_S4x512x256_S4x1x256_0_358_0) : (⟨S4x512x256, .f32⟩ : BufTy).Contents (Elt F) → (⟨S4x1x256, .f32⟩ : BufTy).Contents (Elt F)),
    reshape main_v7166 main_v7167 rfl shapeCasts_S4x1x256_S4x256,
    unary main_v7167 main_v7168 (broadcastInDim S4x256x1 ![0, 1] bcast_S4x256_S4x256x1_0_1 : (⟨S4x256, .f32⟩ : BufTy).Contents (Elt F) → (⟨S4x256x1, .f32⟩ : BufTy).Contents (Elt F)),
    unary main_arg2 main_v7169 ((extractStridedSlice S4x1x16 ![0, 358, 0] · slices_S4x512x16_S4x1x16_0_358_0) : (⟨S4x512x16, .f32⟩ : BufTy).Contents (Elt F) → (⟨S4x1x16, .f32⟩ : BufTy).Contents (Elt F)),
    reshape main_v7169 main_v7170 rfl shapeCasts_S4x1x16_S4x16,
    unary main_v7170 main_v7171 (broadcastInDim S4x1x16 ![0, 2] bcast_S4x16_S4x1x16_0_2 : (⟨S4x16, .f32⟩ : BufTy).Contents (Elt F) → (⟨S4x1x16, .f32⟩ : BufTy).Contents (Elt F)),
    unary main_v7168 main_v7172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7171 main_v7173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7172 main_v7173 main_v7174 (mulf : (⟨S4x256x16, .f32⟩ : BufTy).Contents (Elt F) → (⟨S4x256x16, .f32⟩ : BufTy).Contents (Elt F) → (⟨S4x256x16, .f32⟩ : BufTy).Contents (Elt F)),
    binary main_v7165 main_v7174 main_v7175 (addf : (⟨S4x256x16, .f32⟩ : BufTy).Contents (Elt F) → (⟨S4x256x16, .f32⟩ : BufTy).Contents (Elt F) → (⟨S4x256x16, .f32⟩ : BufTy).Contents (Elt F)),
    unary main_arg3 main_v7176 ((extractStridedSlice S4x1x16 ![0, 358, 0] · slices_S4x512x16_S4x1x16_0_358_0) : (⟨S4x512x16, .f32⟩ : BufTy).Contents (Elt F) → (⟨S4x1x16, .f32⟩ : BufTy).Contents (Elt F)),
    reshape main_v7176 main_v7177 rfl shapeCasts_S4x1x16_S4x16,
    unary main_v7177 main_v7178 (broadcastInDim S4x1x16 ![0, 2] bcast_S4x16_S4x1x16_0_2 : (⟨S4x16, .f32⟩ : BufTy).Contents (Elt F) → (⟨S4x1x16, .f32⟩ : BufTy).Contents (Elt F)),
    unary main_v7178 main_v7179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7175 main_v7179 main_v7180 (mulf : (⟨S4x256x16, .f32⟩ : BufTy).Contents (Elt F) → (⟨S4x256x16, .f32⟩ : BufTy).Contents (Elt F) → (⟨S4x256x16, .f32⟩ : BufTy).Contents (Elt F)),
    nullary main_cst_716 (constant S_ .f32 0x00000000#32),
    binary main_v7180 main_cst_716 main_v7181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_717 (constantI S_ 32 358#32),
    unary main_c_717 main_v7182 (broadcastInDim S1 ![] bcast_S_S1 : (⟨S_, .i32⟩ : BufTy).Contents (Elt F) → (⟨S1, .i32⟩ : BufTy).Contents (Elt F)),
    ternary main_v7163 main_v7182 main_v7181 main_v7183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps358_ok : (stepOps358 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step358_val (V : Valuation τ sig (Elt Ideal)) :
    after (stepOps358 (F := Ideal)) V (no_index (Proc.devRef .tc main_v7175)) = stepH 358 (by decide) (V (Proc.devRef .tc main_arg0)) (V (Proc.devRef .tc main_v3)) (V (Proc.devRef .tc main_arg2)) (V (Proc.devRef .tc main_v7155))
    ∧ after (stepOps358 (F := Ideal)) V (no_index (Proc.devRef .tc main_v7183)) = stepY 358 (by decide) (V (Proc.devRef .tc main_arg3)) (stepH 358 (by decide) (V (Proc.devRef .tc main_arg0)) (V (Proc.devRef .tc main_v3)) (V (Proc.devRef .tc main_arg2)) (V (Proc.devRef .tc main_v7155))) (V (Proc.devRef .tc main_v7163)) := by
  simp only [stepOps358]
  after_results_simp
  first | exact ⟨rfl, rfl⟩ | fail "value"
/-- Step 359 of the loop: operations 7905 … 7926 of the program. -/
abbrev stepOps359 : List (HloOp τ sig (Elt F)) :=
  [ unary main_v3 main_v7184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7175 main_v7184 main_v7185 (mulf : (⟨S4x256x16, .f32⟩ : BufTy).Contents (Elt F) → (⟨S4x256x16, .f32⟩ : BufTy).Contents (Elt F) → (⟨S4x256x16, .f32⟩ : BufTy).Contents (Elt F)),
    unary main_arg0 main_v7186 ((extractStridedSlice S4x1x256 ![0, 359, 0] · slices_S4x512x256_S4x1x256_0_359_0) : (⟨S4x512x256, .f32⟩ : BufTy).Contents (Elt F) → (⟨S4x1x256, .f32⟩ : BufTy).Contents (Elt F)),
    reshape main_v7186 main_v7187 rfl shapeCasts_S4x1x256_S4x256,
    unary main_v7187 main_v7188 (broadcastInDim S4x256x1 ![0, 1] bcast_S4x256_S4x256x1_0_1 : (⟨S4x256, .f32⟩ : BufTy).Contents (Elt F) → (⟨S4x256x1, .f32⟩ : BufTy).Contents (Elt F)),
    unary main_arg2 main_v7189 ((extractStridedSlice S4x1x16 ![0, 359, 0] · slices_S4x512x16_S4x1x16_0_359_0) : (⟨S4x512x16, .f32⟩ : BufTy).Contents (Elt F) → (⟨S4x1x16, .f32⟩ : BufTy).Contents (Elt F)),
    reshape main_v7189 main_v7190 rfl shapeCasts_S4x1x16_S4x16,
    unary main_v7190 main_v7191 (broadcastInDim S4x1x16 ![0, 2] bcast_S4x16_S4x1x16_0_2 : (⟨S4x16, .f32⟩ : BufTy).Contents (Elt F) → (⟨S4x1x16, .f32⟩ : BufTy).Contents (Elt F)),
    unary main_v7188 main_v7192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7191 main_v7193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7192 main_v7193 main_v7194 (mulf : (⟨S4x256x16, .f32⟩ : BufTy).Contents (Elt F) → (⟨S4x256x16, .f32⟩ : BufTy).Contents (Elt F) → (⟨S4x256x16, .f32⟩ : BufTy).Contents (Elt F)),
    binary main_v7185 main_v7194 main_v7195 (addf : (⟨S4x256x16, .f32⟩ : BufTy).Contents (Elt F) → (⟨S4x256x16, .f32⟩ : BufTy).Contents (Elt F) → (⟨S4x256x16, .f32⟩ : BufTy).Contents (Elt F)),
    unary main_arg3 main_v7196 ((extractStridedSlice S4x1x16 ![0, 359, 0] · slices_S4x512x16_S4x1x16_0_359_0) : (⟨S4x512x16, .f32⟩ : BufTy).Contents (Elt F) → (⟨S4x1x16, .f32⟩ : BufTy).Contents (Elt F)),
    reshape main_v7196 main_v7197 rfl shapeCasts_S4x1x16_S4x16,
    unary main_v7197 main_v7198 (broadcastInDim S4x1x16 ![0, 2] bcast_S4x16_S4x1x16_0_2 : (⟨S4x16, .f32⟩ : BufTy).Contents (Elt F) → (⟨S4x1x16, .f32⟩ : BufTy).Contents (Elt F)),
    unary main_v7198 main_v7199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7195 main_v7199 main_v7200 (mulf : (⟨S4x256x16, .f32⟩ : BufTy).Contents (Elt F) → (⟨S4x256x16, .f32⟩ : BufTy).Contents (Elt F) → (⟨S4x256x16, .f32⟩ : BufTy).Contents (Elt F)),
    nullary main_cst_718 (constant S_ .f32 0x00000000#32),
    binary main_v7200 main_cst_718 main_v7201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_719 (constantI S_ 32 359#32),
    unary main_c_719 main_v7202 (broadcastInDim S1 ![] bcast_S_S1 : (⟨S_, .i32⟩ : BufTy).Contents (Elt F) → (⟨S1, .i32⟩ : BufTy).Contents (Elt F)),
    ternary main_v7183 main_v7202 main_v7201 main_v7203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps359_ok : (stepOps359 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step359_val (V : Valuation τ sig (Elt Ideal)) :
    after (stepOps359 (F := Ideal)) V (no_index (Proc.devRef .tc main_v7195)) = stepH 359 (by decide) (V (Proc.devRef .tc main_arg0)) (V (Proc.devRef .tc main_v3)) (V (Proc.devRef .tc main_arg2)) (V (Proc.devRef .tc main_v7175))
    ∧ after (stepOps359 (F := Ideal)) V (no_index (Proc.devRef .tc main_v7203)) = stepY 359 (by decide) (V (Proc.devRef .tc main_arg3)) (stepH 359 (by decide) (V (Proc.devRef .tc main_arg0)) (V (Proc.devRef .tc main_v3)) (V (Proc.devRef .tc main_arg2)) (V (Proc.devRef .tc main_v7175))) (V (Proc.devRef .tc main_v7183)) := by
  simp only [stepOps359]
  after_results_simp
  first | exact ⟨rfl, rfl⟩ | fail "value"
/-- Step 360 of the loop: operations 7927 … 7948 of the program. -/
abbrev stepOps360 : List (HloOp τ sig (Elt F)) :=
  [ unary main_v3 main_v7204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7195 main_v7204 main_v7205 (mulf : (⟨S4x256x16, .f32⟩ : BufTy).Contents (Elt F) → (⟨S4x256x16, .f32⟩ : BufTy).Contents (Elt F) → (⟨S4x256x16, .f32⟩ : BufTy).Contents (Elt F)),
    unary main_arg0 main_v7206 ((extractStridedSlice S4x1x256 ![0, 360, 0] · slices_S4x512x256_S4x1x256_0_360_0) : (⟨S4x512x256, .f32⟩ : BufTy).Contents (Elt F) → (⟨S4x1x256, .f32⟩ : BufTy).Contents (Elt F)),
    reshape main_v7206 main_v7207 rfl shapeCasts_S4x1x256_S4x256,
    unary main_v7207 main_v7208 (broadcastInDim S4x256x1 ![0, 1] bcast_S4x256_S4x256x1_0_1 : (⟨S4x256, .f32⟩ : BufTy).Contents (Elt F) → (⟨S4x256x1, .f32⟩ : BufTy).Contents (Elt F)),
    unary main_arg2 main_v7209 ((extractStridedSlice S4x1x16 ![0, 360, 0] · slices_S4x512x16_S4x1x16_0_360_0) : (⟨S4x512x16, .f32⟩ : BufTy).Contents (Elt F) → (⟨S4x1x16, .f32⟩ : BufTy).Contents (Elt F)),
    reshape main_v7209 main_v7210 rfl shapeCasts_S4x1x16_S4x16,
    unary main_v7210 main_v7211 (broadcastInDim S4x1x16 ![0, 2] bcast_S4x16_S4x1x16_0_2 : (⟨S4x16, .f32⟩ : BufTy).Contents (Elt F) → (⟨S4x1x16, .f32⟩ : BufTy).Contents (Elt F)),
    unary main_v7208 main_v7212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7211 main_v7213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7212 main_v7213 main_v7214 (mulf : (⟨S4x256x16, .f32⟩ : BufTy).Contents (Elt F) → (⟨S4x256x16, .f32⟩ : BufTy).Contents (Elt F) → (⟨S4x256x16, .f32⟩ : BufTy).Contents (Elt F)),
    binary main_v7205 main_v7214 main_v7215 (addf : (⟨S4x256x16, .f32⟩ : BufTy).Contents (Elt F) → (⟨S4x256x16, .f32⟩ : BufTy).Contents (Elt F) → (⟨S4x256x16, .f32⟩ : BufTy).Contents (Elt F)),
    unary main_arg3 main_v7216 ((extractStridedSlice S4x1x16 ![0, 360, 0] · slices_S4x512x16_S4x1x16_0_360_0) : (⟨S4x512x16, .f32⟩ : BufTy).Contents (Elt F) → (⟨S4x1x16, .f32⟩ : BufTy).Contents (Elt F)),
    reshape main_v7216 main_v7217 rfl shapeCasts_S4x1x16_S4x16,
    unary main_v7217 main_v7218 (broadcastInDim S4x1x16 ![0, 2] bcast_S4x16_S4x1x16_0_2 : (⟨S4x16, .f32⟩ : BufTy).Contents (Elt F) → (⟨S4x1x16, .f32⟩ : BufTy).Contents (Elt F)),
    unary main_v7218 main_v7219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7215 main_v7219 main_v7220 (mulf : (⟨S4x256x16, .f32⟩ : BufTy).Contents (Elt F) → (⟨S4x256x16, .f32⟩ : BufTy).Contents (Elt F) → (⟨S4x256x16, .f32⟩ : BufTy).Contents (Elt F)),
    nullary main_cst_720 (constant S_ .f32 0x00000000#32),
    binary main_v7220 main_cst_720 main_v7221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_721 (constantI S_ 32 360#32),
    unary main_c_721 main_v7222 (broadcastInDim S1 ![] bcast_S_S1 : (⟨S_, .i32⟩ : BufTy).Contents (Elt F) → (⟨S1, .i32⟩ : BufTy).Contents (Elt F)),
    ternary main_v7203 main_v7222 main_v7221 main_v7223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps360_ok : (stepOps360 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step360_val (V : Valuation τ sig (Elt Ideal)) :
    after (stepOps360 (F := Ideal)) V (no_index (Proc.devRef .tc main_v7215)) = stepH 360 (by decide) (V (Proc.devRef .tc main_arg0)) (V (Proc.devRef .tc main_v3)) (V (Proc.devRef .tc main_arg2)) (V (Proc.devRef .tc main_v7195))
    ∧ after (stepOps360 (F := Ideal)) V (no_index (Proc.devRef .tc main_v7223)) = stepY 360 (by decide) (V (Proc.devRef .tc main_arg3)) (stepH 360 (by decide) (V (Proc.devRef .tc main_arg0)) (V (Proc.devRef .tc main_v3)) (V (Proc.devRef .tc main_arg2)) (V (Proc.devRef .tc main_v7195))) (V (Proc.devRef .tc main_v7203)) := by
  simp only [stepOps360]
  after_results_simp
  first | exact ⟨rfl, rfl⟩ | fail "value"
/-- Step 361 of the loop: operations 7949 … 7970 of the program. -/
abbrev stepOps361 : List (HloOp τ sig (Elt F)) :=
  [ unary main_v3 main_v7224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7215 main_v7224 main_v7225 (mulf : (⟨S4x256x16, .f32⟩ : BufTy).Contents (Elt F) → (⟨S4x256x16, .f32⟩ : BufTy).Contents (Elt F) → (⟨S4x256x16, .f32⟩ : BufTy).Contents (Elt F)),
    unary main_arg0 main_v7226 ((extractStridedSlice S4x1x256 ![0, 361, 0] · slices_S4x512x256_S4x1x256_0_361_0) : (⟨S4x512x256, .f32⟩ : BufTy).Contents (Elt F) → (⟨S4x1x256, .f32⟩ : BufTy).Contents (Elt F)),
    reshape main_v7226 main_v7227 rfl shapeCasts_S4x1x256_S4x256,
    unary main_v7227 main_v7228 (broadcastInDim S4x256x1 ![0, 1] bcast_S4x256_S4x256x1_0_1 : (⟨S4x256, .f32⟩ : BufTy).Contents (Elt F) → (⟨S4x256x1, .f32⟩ : BufTy).Contents (Elt F)),
    unary main_arg2 main_v7229 ((extractStridedSlice S4x1x16 ![0, 361, 0] · slices_S4x512x16_S4x1x16_0_361_0) : (⟨S4x512x16, .f32⟩ : BufTy).Contents (Elt F) → (⟨S4x1x16, .f32⟩ : BufTy).Contents (Elt F)),
    reshape main_v7229 main_v7230 rfl shapeCasts_S4x1x16_S4x16,
    unary main_v7230 main_v7231 (broadcastInDim S4x1x16 ![0, 2] bcast_S4x16_S4x1x16_0_2 : (⟨S4x16, .f32⟩ : BufTy).Contents (Elt F) → (⟨S4x1x16, .f32⟩ : BufTy).Contents (Elt F)),
    unary main_v7228 main_v7232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7231 main_v7233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7232 main_v7233 main_v7234 (mulf : (⟨S4x256x16, .f32⟩ : BufTy).Contents (Elt F) → (⟨S4x256x16, .f32⟩ : BufTy).Contents (Elt F) → (⟨S4x256x16, .f32⟩ : BufTy).Contents (Elt F)),
    binary main_v7225 main_v7234 main_v7235 (addf : (⟨S4x256x16, .f32⟩ : BufTy).Contents (Elt F) → (⟨S4x256x16, .f32⟩ : BufTy).Contents (Elt F) → (⟨S4x256x16, .f32⟩ : BufTy).Contents (Elt F)),
    unary main_arg3 main_v7236 ((extractStridedSlice S4x1x16 ![0, 361, 0] · slices_S4x512x16_S4x1x16_0_361_0) : (⟨S4x512x16, .f32⟩ : BufTy).Contents (Elt F) → (⟨S4x1x16, .f32⟩ : BufTy).Contents (Elt F)),
    reshape main_v7236 main_v7237 rfl shapeCasts_S4x1x16_S4x16,
    unary main_v7237 main_v7238 (broadcastInDim S4x1x16 ![0, 2] bcast_S4x16_S4x1x16_0_2 : (⟨S4x16, .f32⟩ : BufTy).Contents (Elt F) → (⟨S4x1x16, .f32⟩ : BufTy).Contents (Elt F)),
    unary main_v7238 main_v7239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7235 main_v7239 main_v7240 (mulf : (⟨S4x256x16, .f32⟩ : BufTy).Contents (Elt F) → (⟨S4x256x16, .f32⟩ : BufTy).Contents (Elt F) → (⟨S4x256x16, .f32⟩ : BufTy).Contents (Elt F)),
    nullary main_cst_722 (constant S_ .f32 0x00000000#32),
    binary main_v7240 main_cst_722 main_v7241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_723 (constantI S_ 32 361#32),
    unary main_c_723 main_v7242 (broadcastInDim S1 ![] bcast_S_S1 : (⟨S_, .i32⟩ : BufTy).Contents (Elt F) → (⟨S1, .i32⟩ : BufTy).Contents (Elt F)),
    ternary main_v7223 main_v7242 main_v7241 main_v7243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps361_ok : (stepOps361 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step361_val (V : Valuation τ sig (Elt Ideal)) :
    after (stepOps361 (F := Ideal)) V (no_index (Proc.devRef .tc main_v7235)) = stepH 361 (by decide) (V (Proc.devRef .tc main_arg0)) (V (Proc.devRef .tc main_v3)) (V (Proc.devRef .tc main_arg2)) (V (Proc.devRef .tc main_v7215))
    ∧ after (stepOps361 (F := Ideal)) V (no_index (Proc.devRef .tc main_v7243)) = stepY 361 (by decide) (V (Proc.devRef .tc main_arg3)) (stepH 361 (by decide) (V (Proc.devRef .tc main_arg0)) (V (Proc.devRef .tc main_v3)) (V (Proc.devRef .tc main_arg2)) (V (Proc.devRef .tc main_v7215))) (V (Proc.devRef .tc main_v7223)) := by
  simp only [stepOps361]
  after_results_simp
  first | exact ⟨rfl, rfl⟩ | fail "value"
/-- Step 362 of the loop: operations 7971 … 7992 of the program. -/
abbrev stepOps362 : List (HloOp τ sig (Elt F)) :=
  [ unary main_v3 main_v7244 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7235 main_v7244 main_v7245 (mulf : (⟨S4x256x16, .f32⟩ : BufTy).Contents (Elt F) → (⟨S4x256x16, .f32⟩ : BufTy).Contents (Elt F) → (⟨S4x256x16, .f32⟩ : BufTy).Contents (Elt F)),
    unary main_arg0 main_v7246 ((extractStridedSlice S4x1x256 ![0, 362, 0] · slices_S4x512x256_S4x1x256_0_362_0) : (⟨S4x512x256, .f32⟩ : BufTy).Contents (Elt F) → (⟨S4x1x256, .f32⟩ : BufTy).Contents (Elt F)),
    reshape main_v7246 main_v7247 rfl shapeCasts_S4x1x256_S4x256,
    unary main_v7247 main_v7248 (broadcastInDim S4x256x1 ![0, 1] bcast_S4x256_S4x256x1_0_1 : (⟨S4x256, .f32⟩ : BufTy).Contents (Elt F) → (⟨S4x256x1, .f32⟩ : BufTy).Contents (Elt F)),
    unary main_arg2 main_v7249 ((extractStridedSlice S4x1x16 ![0, 362, 0] · slices_S4x512x16_S4x1x16_0_362_0) : (⟨S4x512x16, .f32⟩ : BufTy).Contents (Elt F) → (⟨S4x1x16, .f32⟩ : BufTy).Contents (Elt F)),
    reshape main_v7249 main_v7250 rfl shapeCasts_S4x1x16_S4x16,
    unary main_v7250 main_v7251 (broadcastInDim S4x1x16 ![0, 2] bcast_S4x16_S4x1x16_0_2 : (⟨S4x16, .f32⟩ : BufTy).Contents (Elt F) → (⟨S4x1x16, .f32⟩ : BufTy).Contents (Elt F)),
    unary main_v7248 main_v7252 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7251 main_v7253 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7252 main_v7253 main_v7254 (mulf : (⟨S4x256x16, .f32⟩ : BufTy).Contents (Elt F) → (⟨S4x256x16, .f32⟩ : BufTy).Contents (Elt F) → (⟨S4x256x16, .f32⟩ : BufTy).Contents (Elt F)),
    binary main_v7245 main_v7254 main_v7255 (addf : (⟨S4x256x16, .f32⟩ : BufTy).Contents (Elt F) → (⟨S4x256x16, .f32⟩ : BufTy).Contents (Elt F) → (⟨S4x256x16, .f32⟩ : BufTy).Contents (Elt F)),
    unary main_arg3 main_v7256 ((extractStridedSlice S4x1x16 ![0, 362, 0] · slices_S4x512x16_S4x1x16_0_362_0) : (⟨S4x512x16, .f32⟩ : BufTy).Contents (Elt F) → (⟨S4x1x16, .f32⟩ : BufTy).Contents (Elt F)),
    reshape main_v7256 main_v7257 rfl shapeCasts_S4x1x16_S4x16,
    unary main_v7257 main_v7258 (broadcastInDim S4x1x16 ![0, 2] bcast_S4x16_S4x1x16_0_2 : (⟨S4x16, .f32⟩ : BufTy).Contents (Elt F) → (⟨S4x1x16, .f32⟩ : BufTy).Contents (Elt F)),
    unary main_v7258 main_v7259 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7255 main_v7259 main_v7260 (mulf : (⟨S4x256x16, .f32⟩ : BufTy).Contents (Elt F) → (⟨S4x256x16, .f32⟩ : BufTy).Contents (Elt F) → (⟨S4x256x16, .f32⟩ : BufTy).Contents (Elt F)),
    nullary main_cst_724 (constant S_ .f32 0x00000000#32),
    binary main_v7260 main_cst_724 main_v7261 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_725 (constantI S_ 32 362#32),
    unary main_c_725 main_v7262 (broadcastInDim S1 ![] bcast_S_S1 : (⟨S_, .i32⟩ : BufTy).Contents (Elt F) → (⟨S1, .i32⟩ : BufTy).Contents (Elt F)),
    ternary main_v7243 main_v7262 main_v7261 main_v7263 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps362_ok : (stepOps362 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step362_val (V : Valuation τ sig (Elt Ideal)) :
    after (stepOps362 (F := Ideal)) V (no_index (Proc.devRef .tc main_v7255)) = stepH 362 (by decide) (V (Proc.devRef .tc main_arg0)) (V (Proc.devRef .tc main_v3)) (V (Proc.devRef .tc main_arg2)) (V (Proc.devRef .tc main_v7235))
    ∧ after (stepOps362 (F := Ideal)) V (no_index (Proc.devRef .tc main_v7263)) = stepY 362 (by decide) (V (Proc.devRef .tc main_arg3)) (stepH 362 (by decide) (V (Proc.devRef .tc main_arg0)) (V (Proc.devRef .tc main_v3)) (V (Proc.devRef .tc main_arg2)) (V (Proc.devRef .tc main_v7235))) (V (Proc.devRef .tc main_v7243)) := by
  simp only [stepOps362]
  after_results_simp
  first | exact ⟨rfl, rfl⟩ | fail "value"
/-- Step 363 of the loop: operations 7993 … 8014 of the program. -/
abbrev stepOps363 : List (HloOp τ sig (Elt F)) :=
  [ unary main_v3 main_v7264 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7255 main_v7264 main_v7265 (mulf : (⟨S4x256x16, .f32⟩ : BufTy).Contents (Elt F) → (⟨S4x256x16, .f32⟩ : BufTy).Contents (Elt F) → (⟨S4x256x16, .f32⟩ : BufTy).Contents (Elt F)),
    unary main_arg0 main_v7266 ((extractStridedSlice S4x1x256 ![0, 363, 0] · slices_S4x512x256_S4x1x256_0_363_0) : (⟨S4x512x256, .f32⟩ : BufTy).Contents (Elt F) → (⟨S4x1x256, .f32⟩ : BufTy).Contents (Elt F)),
    reshape main_v7266 main_v7267 rfl shapeCasts_S4x1x256_S4x256,
    unary main_v7267 main_v7268 (broadcastInDim S4x256x1 ![0, 1] bcast_S4x256_S4x256x1_0_1 : (⟨S4x256, .f32⟩ : BufTy).Contents (Elt F) → (⟨S4x256x1, .f32⟩ : BufTy).Contents (Elt F)),
    unary main_arg2 main_v7269 ((extractStridedSlice S4x1x16 ![0, 363, 0] · slices_S4x512x16_S4x1x16_0_363_0) : (⟨S4x512x16, .f32⟩ : BufTy).Contents (Elt F) → (⟨S4x1x16, .f32⟩ : BufTy).Contents (Elt F)),
    reshape main_v7269 main_v7270 rfl shapeCasts_S4x1x16_S4x16,
    unary main_v7270 main_v7271 (broadcastInDim S4x1x16 ![0, 2] bcast_S4x16_S4x1x16_0_2 : (⟨S4x16, .f32⟩ : BufTy).Contents (Elt F) → (⟨S4x1x16, .f32⟩ : BufTy).Contents (Elt F)),
    unary main_v7268 main_v7272 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7271 main_v7273 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7272 main_v7273 main_v7274 (mulf : (⟨S4x256x16, .f32⟩ : BufTy).Contents (Elt F) → (⟨S4x256x16, .f32⟩ : BufTy).Contents (Elt F) → (⟨S4x256x16, .f32⟩ : BufTy).Contents (Elt F)),
    binary main_v7265 main_v7274 main_v7275 (addf : (⟨S4x256x16, .f32⟩ : BufTy).Contents (Elt F) → (⟨S4x256x16, .f32⟩ : BufTy).Contents (Elt F) → (⟨S4x256x16, .f32⟩ : BufTy).Contents (Elt F)),
    unary main_arg3 main_v7276 ((extractStridedSlice S4x1x16 ![0, 363, 0] · slices_S4x512x16_S4x1x16_0_363_0) : (⟨S4x512x16, .f32⟩ : BufTy).Contents (Elt F) → (⟨S4x1x16, .f32⟩ : BufTy).Contents (Elt F)),
    reshape main_v7276 main_v7277 rfl shapeCasts_S4x1x16_S4x16,
    unary main_v7277 main_v7278 (broadcastInDim S4x1x16 ![0, 2] bcast_S4x16_S4x1x16_0_2 : (⟨S4x16, .f32⟩ : BufTy).Contents (Elt F) → (⟨S4x1x16, .f32⟩ : BufTy).Contents (Elt F)),
    unary main_v7278 main_v7279 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7275 main_v7279 main_v7280 (mulf : (⟨S4x256x16, .f32⟩ : BufTy).Contents (Elt F) → (⟨S4x256x16, .f32⟩ : BufTy).Contents (Elt F) → (⟨S4x256x16, .f32⟩ : BufTy).Contents (Elt F)),
    nullary main_cst_726 (constant S_ .f32 0x00000000#32),
    binary main_v7280 main_cst_726 main_v7281 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_727 (constantI S_ 32 363#32),
    unary main_c_727 main_v7282 (broadcastInDim S1 ![] bcast_S_S1 : (⟨S_, .i32⟩ : BufTy).Contents (Elt F) → (⟨S1, .i32⟩ : BufTy).Contents (Elt F)),
    ternary main_v7263 main_v7282 main_v7281 main_v7283 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps363_ok : (stepOps363 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step363_val (V : Valuation τ sig (Elt Ideal)) :
    after (stepOps363 (F := Ideal)) V (no_index (Proc.devRef .tc main_v7275)) = stepH 363 (by decide) (V (Proc.devRef .tc main_arg0)) (V (Proc.devRef .tc main_v3)) (V (Proc.devRef .tc main_arg2)) (V (Proc.devRef .tc main_v7255))
    ∧ after (stepOps363 (F := Ideal)) V (no_index (Proc.devRef .tc main_v7283)) = stepY 363 (by decide) (V (Proc.devRef .tc main_arg3)) (stepH 363 (by decide) (V (Proc.devRef .tc main_arg0)) (V (Proc.devRef .tc main_v3)) (V (Proc.devRef .tc main_arg2)) (V (Proc.devRef .tc main_v7255))) (V (Proc.devRef .tc main_v7263)) := by
  simp only [stepOps363]
  after_results_simp
  first | exact ⟨rfl, rfl⟩ | fail "value"
/-- Step 364 of the loop: operations 8015 … 8036 of the program. -/
abbrev stepOps364 : List (HloOp τ sig (Elt F)) :=
  [ unary main_v3 main_v7284 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7275 main_v7284 main_v7285 (mulf : (⟨S4x256x16, .f32⟩ : BufTy).Contents (Elt F) → (⟨S4x256x16, .f32⟩ : BufTy).Contents (Elt F) → (⟨S4x256x16, .f32⟩ : BufTy).Contents (Elt F)),
    unary main_arg0 main_v7286 ((extractStridedSlice S4x1x256 ![0, 364, 0] · slices_S4x512x256_S4x1x256_0_364_0) : (⟨S4x512x256, .f32⟩ : BufTy).Contents (Elt F) → (⟨S4x1x256, .f32⟩ : BufTy).Contents (Elt F)),
    reshape main_v7286 main_v7287 rfl shapeCasts_S4x1x256_S4x256,
    unary main_v7287 main_v7288 (broadcastInDim S4x256x1 ![0, 1] bcast_S4x256_S4x256x1_0_1 : (⟨S4x256, .f32⟩ : BufTy).Contents (Elt F) → (⟨S4x256x1, .f32⟩ : BufTy).Contents (Elt F)),
    unary main_arg2 main_v7289 ((extractStridedSlice S4x1x16 ![0, 364, 0] · slices_S4x512x16_S4x1x16_0_364_0) : (⟨S4x512x16, .f32⟩ : BufTy).Contents (Elt F) → (⟨S4x1x16, .f32⟩ : BufTy).Contents (Elt F)),
    reshape main_v7289 main_v7290 rfl shapeCasts_S4x1x16_S4x16,
    unary main_v7290 main_v7291 (broadcastInDim S4x1x16 ![0, 2] bcast_S4x16_S4x1x16_0_2 : (⟨S4x16, .f32⟩ : BufTy).Contents (Elt F) → (⟨S4x1x16, .f32⟩ : BufTy).Contents (Elt F)),
    unary main_v7288 main_v7292 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7291 main_v7293 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7292 main_v7293 main_v7294 (mulf : (⟨S4x256x16, .f32⟩ : BufTy).Contents (Elt F) → (⟨S4x256x16, .f32⟩ : BufTy).Contents (Elt F) → (⟨S4x256x16, .f32⟩ : BufTy).Contents (Elt F)),
    binary main_v7285 main_v7294 main_v7295 (addf : (⟨S4x256x16, .f32⟩ : BufTy).Contents (Elt F) → (⟨S4x256x16, .f32⟩ : BufTy).Contents (Elt F) → (⟨S4x256x16, .f32⟩ : BufTy).Contents (Elt F)),
    unary main_arg3 main_v7296 ((extractStridedSlice S4x1x16 ![0, 364, 0] · slices_S4x512x16_S4x1x16_0_364_0) : (⟨S4x512x16, .f32⟩ : BufTy).Contents (Elt F) → (⟨S4x1x16, .f32⟩ : BufTy).Contents (Elt F)),
    reshape main_v7296 main_v7297 rfl shapeCasts_S4x1x16_S4x16,
    unary main_v7297 main_v7298 (broadcastInDim S4x1x16 ![0, 2] bcast_S4x16_S4x1x16_0_2 : (⟨S4x16, .f32⟩ : BufTy).Contents (Elt F) → (⟨S4x1x16, .f32⟩ : BufTy).Contents (Elt F)),
    unary main_v7298 main_v7299 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7295 main_v7299 main_v7300 (mulf : (⟨S4x256x16, .f32⟩ : BufTy).Contents (Elt F) → (⟨S4x256x16, .f32⟩ : BufTy).Contents (Elt F) → (⟨S4x256x16, .f32⟩ : BufTy).Contents (Elt F)),
    nullary main_cst_728 (constant S_ .f32 0x00000000#32),
    binary main_v7300 main_cst_728 main_v7301 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_729 (constantI S_ 32 364#32),
    unary main_c_729 main_v7302 (broadcastInDim S1 ![] bcast_S_S1 : (⟨S_, .i32⟩ : BufTy).Contents (Elt F) → (⟨S1, .i32⟩ : BufTy).Contents (Elt F)),
    ternary main_v7283 main_v7302 main_v7301 main_v7303 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps364_ok : (stepOps364 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step364_val (V : Valuation τ sig (Elt Ideal)) :
    after (stepOps364 (F := Ideal)) V (no_index (Proc.devRef .tc main_v7295)) = stepH 364 (by decide) (V (Proc.devRef .tc main_arg0)) (V (Proc.devRef .tc main_v3)) (V (Proc.devRef .tc main_arg2)) (V (Proc.devRef .tc main_v7275))
    ∧ after (stepOps364 (F := Ideal)) V (no_index (Proc.devRef .tc main_v7303)) = stepY 364 (by decide) (V (Proc.devRef .tc main_arg3)) (stepH 364 (by decide) (V (Proc.devRef .tc main_arg0)) (V (Proc.devRef .tc main_v3)) (V (Proc.devRef .tc main_arg2)) (V (Proc.devRef .tc main_v7275))) (V (Proc.devRef .tc main_v7283)) := by
  simp only [stepOps364]
  after_results_simp
  first | exact ⟨rfl, rfl⟩ | fail "value"
/-- Step 365 of the loop: operations 8037 … 8058 of the program. -/
abbrev stepOps365 : List (HloOp τ sig (Elt F)) :=
  [ unary main_v3 main_v7304 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7295 main_v7304 main_v7305 (mulf : (⟨S4x256x16, .f32⟩ : BufTy).Contents (Elt F) → (⟨S4x256x16, .f32⟩ : BufTy).Contents (Elt F) → (⟨S4x256x16, .f32⟩ : BufTy).Contents (Elt F)),
    unary main_arg0 main_v7306 ((extractStridedSlice S4x1x256 ![0, 365, 0] · slices_S4x512x256_S4x1x256_0_365_0) : (⟨S4x512x256, .f32⟩ : BufTy).Contents (Elt F) → (⟨S4x1x256, .f32⟩ : BufTy).Contents (Elt F)),
    reshape main_v7306 main_v7307 rfl shapeCasts_S4x1x256_S4x256,
    unary main_v7307 main_v7308 (broadcastInDim S4x256x1 ![0, 1] bcast_S4x256_S4x256x1_0_1 : (⟨S4x256, .f32⟩ : BufTy).Contents (Elt F) → (⟨S4x256x1, .f32⟩ : BufTy).Contents (Elt F)),
    unary main_arg2 main_v7309 ((extractStridedSlice S4x1x16 ![0, 365, 0] · slices_S4x512x16_S4x1x16_0_365_0) : (⟨S4x512x16, .f32⟩ : BufTy).Contents (Elt F) → (⟨S4x1x16, .f32⟩ : BufTy).Contents (Elt F)),
    reshape main_v7309 main_v7310 rfl shapeCasts_S4x1x16_S4x16,
    unary main_v7310 main_v7311 (broadcastInDim S4x1x16 ![0, 2] bcast_S4x16_S4x1x16_0_2 : (⟨S4x16, .f32⟩ : BufTy).Contents (Elt F) → (⟨S4x1x16, .f32⟩ : BufTy).Contents (Elt F)),
    unary main_v7308 main_v7312 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7311 main_v7313 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7312 main_v7313 main_v7314 (mulf : (⟨S4x256x16, .f32⟩ : BufTy).Contents (Elt F) → (⟨S4x256x16, .f32⟩ : BufTy).Contents (Elt F) → (⟨S4x256x16, .f32⟩ : BufTy).Contents (Elt F)),
    binary main_v7305 main_v7314 main_v7315 (addf : (⟨S4x256x16, .f32⟩ : BufTy).Contents (Elt F) → (⟨S4x256x16, .f32⟩ : BufTy).Contents (Elt F) → (⟨S4x256x16, .f32⟩ : BufTy).Contents (Elt F)),
    unary main_arg3 main_v7316 ((extractStridedSlice S4x1x16 ![0, 365, 0] · slices_S4x512x16_S4x1x16_0_365_0) : (⟨S4x512x16, .f32⟩ : BufTy).Contents (Elt F) → (⟨S4x1x16, .f32⟩ : BufTy).Contents (Elt F)),
    reshape main_v7316 main_v7317 rfl shapeCasts_S4x1x16_S4x16,
    unary main_v7317 main_v7318 (broadcastInDim S4x1x16 ![0, 2] bcast_S4x16_S4x1x16_0_2 : (⟨S4x16, .f32⟩ : BufTy).Contents (Elt F) → (⟨S4x1x16, .f32⟩ : BufTy).Contents (Elt F)),
    unary main_v7318 main_v7319 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7315 main_v7319 main_v7320 (mulf : (⟨S4x256x16, .f32⟩ : BufTy).Contents (Elt F) → (⟨S4x256x16, .f32⟩ : BufTy).Contents (Elt F) → (⟨S4x256x16, .f32⟩ : BufTy).Contents (Elt F)),
    nullary main_cst_730 (constant S_ .f32 0x00000000#32),
    binary main_v7320 main_cst_730 main_v7321 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_731 (constantI S_ 32 365#32),
    unary main_c_731 main_v7322 (broadcastInDim S1 ![] bcast_S_S1 : (⟨S_, .i32⟩ : BufTy).Contents (Elt F) → (⟨S1, .i32⟩ : BufTy).Contents (Elt F)),
    ternary main_v7303 main_v7322 main_v7321 main_v7323 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps365_ok : (stepOps365 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step365_val (V : Valuation τ sig (Elt Ideal)) :
    after (stepOps365 (F := Ideal)) V (no_index (Proc.devRef .tc main_v7315)) = stepH 365 (by decide) (V (Proc.devRef .tc main_arg0)) (V (Proc.devRef .tc main_v3)) (V (Proc.devRef .tc main_arg2)) (V (Proc.devRef .tc main_v7295))
    ∧ after (stepOps365 (F := Ideal)) V (no_index (Proc.devRef .tc main_v7323)) = stepY 365 (by decide) (V (Proc.devRef .tc main_arg3)) (stepH 365 (by decide) (V (Proc.devRef .tc main_arg0)) (V (Proc.devRef .tc main_v3)) (V (Proc.devRef .tc main_arg2)) (V (Proc.devRef .tc main_v7295))) (V (Proc.devRef .tc main_v7303)) := by
  simp only [stepOps365]
  after_results_simp
  first | exact ⟨rfl, rfl⟩ | fail "value"
/-- Step 366 of the loop: operations 8059 … 8080 of the program. -/
abbrev stepOps366 : List (HloOp τ sig (Elt F)) :=
  [ unary main_v3 main_v7324 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7315 main_v7324 main_v7325 (mulf : (⟨S4x256x16, .f32⟩ : BufTy).Contents (Elt F) → (⟨S4x256x16, .f32⟩ : BufTy).Contents (Elt F) → (⟨S4x256x16, .f32⟩ : BufTy).Contents (Elt F)),
    unary main_arg0 main_v7326 ((extractStridedSlice S4x1x256 ![0, 366, 0] · slices_S4x512x256_S4x1x256_0_366_0) : (⟨S4x512x256, .f32⟩ : BufTy).Contents (Elt F) → (⟨S4x1x256, .f32⟩ : BufTy).Contents (Elt F)),
    reshape main_v7326 main_v7327 rfl shapeCasts_S4x1x256_S4x256,
    unary main_v7327 main_v7328 (broadcastInDim S4x256x1 ![0, 1] bcast_S4x256_S4x256x1_0_1 : (⟨S4x256, .f32⟩ : BufTy).Contents (Elt F) → (⟨S4x256x1, .f32⟩ : BufTy).Contents (Elt F)),
    unary main_arg2 main_v7329 ((extractStridedSlice S4x1x16 ![0, 366, 0] · slices_S4x512x16_S4x1x16_0_366_0) : (⟨S4x512x16, .f32⟩ : BufTy).Contents (Elt F) → (⟨S4x1x16, .f32⟩ : BufTy).Contents (Elt F)),
    reshape main_v7329 main_v7330 rfl shapeCasts_S4x1x16_S4x16,
    unary main_v7330 main_v7331 (broadcastInDim S4x1x16 ![0, 2] bcast_S4x16_S4x1x16_0_2 : (⟨S4x16, .f32⟩ : BufTy).Contents (Elt F) → (⟨S4x1x16, .f32⟩ : BufTy).Contents (Elt F)),
    unary main_v7328 main_v7332 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7331 main_v7333 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7332 main_v7333 main_v7334 (mulf : (⟨S4x256x16, .f32⟩ : BufTy).Contents (Elt F) → (⟨S4x256x16, .f32⟩ : BufTy).Contents (Elt F) → (⟨S4x256x16, .f32⟩ : BufTy).Contents (Elt F)),
    binary main_v7325 main_v7334 main_v7335 (addf : (⟨S4x256x16, .f32⟩ : BufTy).Contents (Elt F) → (⟨S4x256x16, .f32⟩ : BufTy).Contents (Elt F) → (⟨S4x256x16, .f32⟩ : BufTy).Contents (Elt F)),
    unary main_arg3 main_v7336 ((extractStridedSlice S4x1x16 ![0, 366, 0] · slices_S4x512x16_S4x1x16_0_366_0) : (⟨S4x512x16, .f32⟩ : BufTy).Contents (Elt F) → (⟨S4x1x16, .f32⟩ : BufTy).Contents (Elt F)),
    reshape main_v7336 main_v7337 rfl shapeCasts_S4x1x16_S4x16,
    unary main_v7337 main_v7338 (broadcastInDim S4x1x16 ![0, 2] bcast_S4x16_S4x1x16_0_2 : (⟨S4x16, .f32⟩ : BufTy).Contents (Elt F) → (⟨S4x1x16, .f32⟩ : BufTy).Contents (Elt F)),
    unary main_v7338 main_v7339 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7335 main_v7339 main_v7340 (mulf : (⟨S4x256x16, .f32⟩ : BufTy).Contents (Elt F) → (⟨S4x256x16, .f32⟩ : BufTy).Contents (Elt F) → (⟨S4x256x16, .f32⟩ : BufTy).Contents (Elt F)),
    nullary main_cst_732 (constant S_ .f32 0x00000000#32),
    binary main_v7340 main_cst_732 main_v7341 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_733 (constantI S_ 32 366#32),
    unary main_c_733 main_v7342 (broadcastInDim S1 ![] bcast_S_S1 : (⟨S_, .i32⟩ : BufTy).Contents (Elt F) → (⟨S1, .i32⟩ : BufTy).Contents (Elt F)),
    ternary main_v7323 main_v7342 main_v7341 main_v7343 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps366_ok : (stepOps366 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step366_val (V : Valuation τ sig (Elt Ideal)) :
    after (stepOps366 (F := Ideal)) V (no_index (Proc.devRef .tc main_v7335)) = stepH 366 (by decide) (V (Proc.devRef .tc main_arg0)) (V (Proc.devRef .tc main_v3)) (V (Proc.devRef .tc main_arg2)) (V (Proc.devRef .tc main_v7315))
    ∧ after (stepOps366 (F := Ideal)) V (no_index (Proc.devRef .tc main_v7343)) = stepY 366 (by decide) (V (Proc.devRef .tc main_arg3)) (stepH 366 (by decide) (V (Proc.devRef .tc main_arg0)) (V (Proc.devRef .tc main_v3)) (V (Proc.devRef .tc main_arg2)) (V (Proc.devRef .tc main_v7315))) (V (Proc.devRef .tc main_v7323)) := by
  simp only [stepOps366]
  after_results_simp
  first | exact ⟨rfl, rfl⟩ | fail "value"
/-- Step 367 of the loop: operations 8081 … 8102 of the program. -/
abbrev stepOps367 : List (HloOp τ sig (Elt F)) :=
  [ unary main_v3 main_v7344 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7335 main_v7344 main_v7345 (mulf : (⟨S4x256x16, .f32⟩ : BufTy).Contents (Elt F) → (⟨S4x256x16, .f32⟩ : BufTy).Contents (Elt F) → (⟨S4x256x16, .f32⟩ : BufTy).Contents (Elt F)),
    unary main_arg0 main_v7346 ((extractStridedSlice S4x1x256 ![0, 367, 0] · slices_S4x512x256_S4x1x256_0_367_0) : (⟨S4x512x256, .f32⟩ : BufTy).Contents (Elt F) → (⟨S4x1x256, .f32⟩ : BufTy).Contents (Elt F)),
    reshape main_v7346 main_v7347 rfl shapeCasts_S4x1x256_S4x256,
    unary main_v7347 main_v7348 (broadcastInDim S4x256x1 ![0, 1] bcast_S4x256_S4x256x1_0_1 : (⟨S4x256, .f32⟩ : BufTy).Contents (Elt F) → (⟨S4x256x1, .f32⟩ : BufTy).Contents (Elt F)),
    unary main_arg2 main_v7349 ((extractStridedSlice S4x1x16 ![0, 367, 0] · slices_S4x512x16_S4x1x16_0_367_0) : (⟨S4x512x16, .f32⟩ : BufTy).Contents (Elt F) → (⟨S4x1x16, .f32⟩ : BufTy).Contents (Elt F)),
    reshape main_v7349 main_v7350 rfl shapeCasts_S4x1x16_S4x16,
    unary main_v7350 main_v7351 (broadcastInDim S4x1x16 ![0, 2] bcast_S4x16_S4x1x16_0_2 : (⟨S4x16, .f32⟩ : BufTy).Contents (Elt F) → (⟨S4x1x16, .f32⟩ : BufTy).Contents (Elt F)),
    unary main_v7348 main_v7352 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7351 main_v7353 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7352 main_v7353 main_v7354 (mulf : (⟨S4x256x16, .f32⟩ : BufTy).Contents (Elt F) → (⟨S4x256x16, .f32⟩ : BufTy).Contents (Elt F) → (⟨S4x256x16, .f32⟩ : BufTy).Contents (Elt F)),
    binary main_v7345 main_v7354 main_v7355 (addf : (⟨S4x256x16, .f32⟩ : BufTy).Contents (Elt F) → (⟨S4x256x16, .f32⟩ : BufTy).Contents (Elt F) → (⟨S4x256x16, .f32⟩ : BufTy).Contents (Elt F)),
    unary main_arg3 main_v7356 ((extractStridedSlice S4x1x16 ![0, 367, 0] · slices_S4x512x16_S4x1x16_0_367_0) : (⟨S4x512x16, .f32⟩ : BufTy).Contents (Elt F) → (⟨S4x1x16, .f32⟩ : BufTy).Contents (Elt F)),
    reshape main_v7356 main_v7357 rfl shapeCasts_S4x1x16_S4x16,
    unary main_v7357 main_v7358 (broadcastInDim S4x1x16 ![0, 2] bcast_S4x16_S4x1x16_0_2 : (⟨S4x16, .f32⟩ : BufTy).Contents (Elt F) → (⟨S4x1x16, .f32⟩ : BufTy).Contents (Elt F)),
    unary main_v7358 main_v7359 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7355 main_v7359 main_v7360 (mulf : (⟨S4x256x16, .f32⟩ : BufTy).Contents (Elt F) → (⟨S4x256x16, .f32⟩ : BufTy).Contents (Elt F) → (⟨S4x256x16, .f32⟩ : BufTy).Contents (Elt F)),
    nullary main_cst_734 (constant S_ .f32 0x00000000#32),
    binary main_v7360 main_cst_734 main_v7361 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_735 (constantI S_ 32 367#32),
    unary main_c_735 main_v7362 (broadcastInDim S1 ![] bcast_S_S1 : (⟨S_, .i32⟩ : BufTy).Contents (Elt F) → (⟨S1, .i32⟩ : BufTy).Contents (Elt F)),
    ternary main_v7343 main_v7362 main_v7361 main_v7363 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps367_ok : (stepOps367 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step367_val (V : Valuation τ sig (Elt Ideal)) :
    after (stepOps367 (F := Ideal)) V (no_index (Proc.devRef .tc main_v7355)) = stepH 367 (by decide) (V (Proc.devRef .tc main_arg0)) (V (Proc.devRef .tc main_v3)) (V (Proc.devRef .tc main_arg2)) (V (Proc.devRef .tc main_v7335))
    ∧ after (stepOps367 (F := Ideal)) V (no_index (Proc.devRef .tc main_v7363)) = stepY 367 (by decide) (V (Proc.devRef .tc main_arg3)) (stepH 367 (by decide) (V (Proc.devRef .tc main_arg0)) (V (Proc.devRef .tc main_v3)) (V (Proc.devRef .tc main_arg2)) (V (Proc.devRef .tc main_v7335))) (V (Proc.devRef .tc main_v7343)) := by
  simp only [stepOps367]
  after_results_simp
  first | exact ⟨rfl, rfl⟩ | fail "value"

end Cert.ReferenceIdeal.RefRun

end
-- ==== Proof.RefTableStep23.lean ====
/-
  Steps 368 … 383 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 368 of the loop: operations 8103 … 8124 of the program. -/
abbrev stepOps368 : List (HloOp τ sig (Elt F)) :=
  [ unary main_v3 main_v7364 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7355 main_v7364 main_v7365 (mulf : (⟨S4x256x16, .f32⟩ : BufTy).Contents (Elt F) → (⟨S4x256x16, .f32⟩ : BufTy).Contents (Elt F) → (⟨S4x256x16, .f32⟩ : BufTy).Contents (Elt F)),
    unary main_arg0 main_v7366 ((extractStridedSlice S4x1x256 ![0, 368, 0] · slices_S4x512x256_S4x1x256_0_368_0) : (⟨S4x512x256, .f32⟩ : BufTy).Contents (Elt F) → (⟨S4x1x256, .f32⟩ : BufTy).Contents (Elt F)),
    reshape main_v7366 main_v7367 rfl shapeCasts_S4x1x256_S4x256,
    unary main_v7367 main_v7368 (broadcastInDim S4x256x1 ![0, 1] bcast_S4x256_S4x256x1_0_1 : (⟨S4x256, .f32⟩ : BufTy).Contents (Elt F) → (⟨S4x256x1, .f32⟩ : BufTy).Contents (Elt F)),
    unary main_arg2 main_v7369 ((extractStridedSlice S4x1x16 ![0, 368, 0] · slices_S4x512x16_S4x1x16_0_368_0) : (⟨S4x512x16, .f32⟩ : BufTy).Contents (Elt F) → (⟨S4x1x16, .f32⟩ : BufTy).Contents (Elt F)),
    reshape main_v7369 main_v7370 rfl shapeCasts_S4x1x16_S4x16,
    unary main_v7370 main_v7371 (broadcastInDim S4x1x16 ![0, 2] bcast_S4x16_S4x1x16_0_2 : (⟨S4x16, .f32⟩ : BufTy).Contents (Elt F) → (⟨S4x1x16, .f32⟩ : BufTy).Contents (Elt F)),
    unary main_v7368 main_v7372 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7371 main_v7373 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7372 main_v7373 main_v7374 (mulf : (⟨S4x256x16, .f32⟩ : BufTy).Contents (Elt F) → (⟨S4x256x16, .f32⟩ : BufTy).Contents (Elt F) → (⟨S4x256x16, .f32⟩ : BufTy).Contents (Elt F)),
    binary main_v7365 main_v7374 main_v7375 (addf : (⟨S4x256x16, .f32⟩ : BufTy).Contents (Elt F) → (⟨S4x256x16, .f32⟩ : BufTy).Contents (Elt F) → (⟨S4x256x16, .f32⟩ : BufTy).Contents (Elt F)),
    unary main_arg3 main_v7376 ((extractStridedSlice S4x1x16 ![0, 368, 0] · slices_S4x512x16_S4x1x16_0_368_0) : (⟨S4x512x16, .f32⟩ : BufTy).Contents (Elt F) → (⟨S4x1x16, .f32⟩ : BufTy).Contents (Elt F)),
    reshape main_v7376 main_v7377 rfl shapeCasts_S4x1x16_S4x16,
    unary main_v7377 main_v7378 (broadcastInDim S4x1x16 ![0, 2] bcast_S4x16_S4x1x16_0_2 : (⟨S4x16, .f32⟩ : BufTy).Contents (Elt F) → (⟨S4x1x16, .f32⟩ : BufTy).Contents (Elt F)),
    unary main_v7378 main_v7379 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7375 main_v7379 main_v7380 (mulf : (⟨S4x256x16, .f32⟩ : BufTy).Contents (Elt F) → (⟨S4x256x16, .f32⟩ : BufTy).Contents (Elt F) → (⟨S4x256x16, .f32⟩ : BufTy).Contents (Elt F)),
    nullary main_cst_736 (constant S_ .f32 0x00000000#32),
    binary main_v7380 main_cst_736 main_v7381 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_737 (constantI S_ 32 368#32),
    unary main_c_737 main_v7382 (broadcastInDim S1 ![] bcast_S_S1 : (⟨S_, .i32⟩ : BufTy).Contents (Elt F) → (⟨S1, .i32⟩ : BufTy).Contents (Elt F)),
    ternary main_v7363 main_v7382 main_v7381 main_v7383 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps368_ok : (stepOps368 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step368_val (V : Valuation τ sig (Elt Ideal)) :
    after (stepOps368 (F := Ideal)) V (no_index (Proc.devRef .tc main_v7375)) = stepH 368 (by decide) (V (Proc.devRef .tc main_arg0)) (V (Proc.devRef .tc main_v3)) (V (Proc.devRef .tc main_arg2)) (V (Proc.devRef .tc main_v7355))
    ∧ after (stepOps368 (F := Ideal)) V (no_index (Proc.devRef .tc main_v7383)) = stepY 368 (by decide) (V (Proc.devRef .tc main_arg3)) (stepH 368 (by decide) (V (Proc.devRef .tc main_arg0)) (V (Proc.devRef .tc main_v3)) (V (Proc.devRef .tc main_arg2)) (V (Proc.devRef .tc main_v7355))) (V (Proc.devRef .tc main_v7363)) := by
  simp only [stepOps368]
  after_results_simp
  first | exact ⟨rfl, rfl⟩ | fail "value"
/-- Step 369 of the loop: operations 8125 … 8146 of the program. -/
abbrev stepOps369 : List (HloOp τ sig (Elt F)) :=
  [ unary main_v3 main_v7384 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7375 main_v7384 main_v7385 (mulf : (⟨S4x256x16, .f32⟩ : BufTy).Contents (Elt F) → (⟨S4x256x16, .f32⟩ : BufTy).Contents (Elt F) → (⟨S4x256x16, .f32⟩ : BufTy).Contents (Elt F)),
    unary main_arg0 main_v7386 ((extractStridedSlice S4x1x256 ![0, 369, 0] · slices_S4x512x256_S4x1x256_0_369_0) : (⟨S4x512x256, .f32⟩ : BufTy).Contents (Elt F) → (⟨S4x1x256, .f32⟩ : BufTy).Contents (Elt F)),
    reshape main_v7386 main_v7387 rfl shapeCasts_S4x1x256_S4x256,
    unary main_v7387 main_v7388 (broadcastInDim S4x256x1 ![0, 1] bcast_S4x256_S4x256x1_0_1 : (⟨S4x256, .f32⟩ : BufTy).Contents (Elt F) → (⟨S4x256x1, .f32⟩ : BufTy).Contents (Elt F)),
    unary main_arg2 main_v7389 ((extractStridedSlice S4x1x16 ![0, 369, 0] · slices_S4x512x16_S4x1x16_0_369_0) : (⟨S4x512x16, .f32⟩ : BufTy).Contents (Elt F) → (⟨S4x1x16, .f32⟩ : BufTy).Contents (Elt F)),
    reshape main_v7389 main_v7390 rfl shapeCasts_S4x1x16_S4x16,
    unary main_v7390 main_v7391 (broadcastInDim S4x1x16 ![0, 2] bcast_S4x16_S4x1x16_0_2 : (⟨S4x16, .f32⟩ : BufTy).Contents (Elt F) → (⟨S4x1x16, .f32⟩ : BufTy).Contents (Elt F)),
    unary main_v7388 main_v7392 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7391 main_v7393 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7392 main_v7393 main_v7394 (mulf : (⟨S4x256x16, .f32⟩ : BufTy).Contents (Elt F) → (⟨S4x256x16, .f32⟩ : BufTy).Contents (Elt F) → (⟨S4x256x16, .f32⟩ : BufTy).Contents (Elt F)),
    binary main_v7385 main_v7394 main_v7395 (addf : (⟨S4x256x16, .f32⟩ : BufTy).Contents (Elt F) → (⟨S4x256x16, .f32⟩ : BufTy).Contents (Elt F) → (⟨S4x256x16, .f32⟩ : BufTy).Contents (Elt F)),
    unary main_arg3 main_v7396 ((extractStridedSlice S4x1x16 ![0, 369, 0] · slices_S4x512x16_S4x1x16_0_369_0) : (⟨S4x512x16, .f32⟩ : BufTy).Contents (Elt F) → (⟨S4x1x16, .f32⟩ : BufTy).Contents (Elt F)),
    reshape main_v7396 main_v7397 rfl shapeCasts_S4x1x16_S4x16,
    unary main_v7397 main_v7398 (broadcastInDim S4x1x16 ![0, 2] bcast_S4x16_S4x1x16_0_2 : (⟨S4x16, .f32⟩ : BufTy).Contents (Elt F) → (⟨S4x1x16, .f32⟩ : BufTy).Contents (Elt F)),
    unary main_v7398 main_v7399 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7395 main_v7399 main_v7400 (mulf : (⟨S4x256x16, .f32⟩ : BufTy).Contents (Elt F) → (⟨S4x256x16, .f32⟩ : BufTy).Contents (Elt F) → (⟨S4x256x16, .f32⟩ : BufTy).Contents (Elt F)),
    nullary main_cst_738 (constant S_ .f32 0x00000000#32),
    binary main_v7400 main_cst_738 main_v7401 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_739 (constantI S_ 32 369#32),
    unary main_c_739 main_v7402 (broadcastInDim S1 ![] bcast_S_S1 : (⟨S_, .i32⟩ : BufTy).Contents (Elt F) → (⟨S1, .i32⟩ : BufTy).Contents (Elt F)),
    ternary main_v7383 main_v7402 main_v7401 main_v7403 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps369_ok : (stepOps369 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step369_val (V : Valuation τ sig (Elt Ideal)) :
    after (stepOps369 (F := Ideal)) V (no_index (Proc.devRef .tc main_v7395)) = stepH 369 (by decide) (V (Proc.devRef .tc main_arg0)) (V (Proc.devRef .tc main_v3)) (V (Proc.devRef .tc main_arg2)) (V (Proc.devRef .tc main_v7375))
    ∧ after (stepOps369 (F := Ideal)) V (no_index (Proc.devRef .tc main_v7403)) = stepY 369 (by decide) (V (Proc.devRef .tc main_arg3)) (stepH 369 (by decide) (V (Proc.devRef .tc main_arg0)) (V (Proc.devRef .tc main_v3)) (V (Proc.devRef .tc main_arg2)) (V (Proc.devRef .tc main_v7375))) (V (Proc.devRef .tc main_v7383)) := by
  simp only [stepOps369]
  after_results_simp
  first | exact ⟨rfl, rfl⟩ | fail "value"
/-- Step 370 of the loop: operations 8147 … 8168 of the program. -/
abbrev stepOps370 : List (HloOp τ sig (Elt F)) :=
  [ unary main_v3 main_v7404 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7395 main_v7404 main_v7405 (mulf : (⟨S4x256x16, .f32⟩ : BufTy).Contents (Elt F) → (⟨S4x256x16, .f32⟩ : BufTy).Contents (Elt F) → (⟨S4x256x16, .f32⟩ : BufTy).Contents (Elt F)),
    unary main_arg0 main_v7406 ((extractStridedSlice S4x1x256 ![0, 370, 0] · slices_S4x512x256_S4x1x256_0_370_0) : (⟨S4x512x256, .f32⟩ : BufTy).Contents (Elt F) → (⟨S4x1x256, .f32⟩ : BufTy).Contents (Elt F)),
    reshape main_v7406 main_v7407 rfl shapeCasts_S4x1x256_S4x256,
    unary main_v7407 main_v7408 (broadcastInDim S4x256x1 ![0, 1] bcast_S4x256_S4x256x1_0_1 : (⟨S4x256, .f32⟩ : BufTy).Contents (Elt F) → (⟨S4x256x1, .f32⟩ : BufTy).Contents (Elt F)),
    unary main_arg2 main_v7409 ((extractStridedSlice S4x1x16 ![0, 370, 0] · slices_S4x512x16_S4x1x16_0_370_0) : (⟨S4x512x16, .f32⟩ : BufTy).Contents (Elt F) → (⟨S4x1x16, .f32⟩ : BufTy).Contents (Elt F)),
    reshape main_v7409 main_v7410 rfl shapeCasts_S4x1x16_S4x16,
    unary main_v7410 main_v7411 (broadcastInDim S4x1x16 ![0, 2] bcast_S4x16_S4x1x16_0_2 : (⟨S4x16, .f32⟩ : BufTy).Contents (Elt F) → (⟨S4x1x16, .f32⟩ : BufTy).Contents (Elt F)),
    unary main_v7408 main_v7412 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7411 main_v7413 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7412 main_v7413 main_v7414 (mulf : (⟨S4x256x16, .f32⟩ : BufTy).Contents (Elt F) → (⟨S4x256x16, .f32⟩ : BufTy).Contents (Elt F) → (⟨S4x256x16, .f32⟩ : BufTy).Contents (Elt F)),
    binary main_v7405 main_v7414 main_v7415 (addf : (⟨S4x256x16, .f32⟩ : BufTy).Contents (Elt F) → (⟨S4x256x16, .f32⟩ : BufTy).Contents (Elt F) → (⟨S4x256x16, .f32⟩ : BufTy).Contents (Elt F)),
    unary main_arg3 main_v7416 ((extractStridedSlice S4x1x16 ![0, 370, 0] · slices_S4x512x16_S4x1x16_0_370_0) : (⟨S4x512x16, .f32⟩ : BufTy).Contents (Elt F) → (⟨S4x1x16, .f32⟩ : BufTy).Contents (Elt F)),
    reshape main_v7416 main_v7417 rfl shapeCasts_S4x1x16_S4x16,
    unary main_v7417 main_v7418 (broadcastInDim S4x1x16 ![0, 2] bcast_S4x16_S4x1x16_0_2 : (⟨S4x16, .f32⟩ : BufTy).Contents (Elt F) → (⟨S4x1x16, .f32⟩ : BufTy).Contents (Elt F)),
    unary main_v7418 main_v7419 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7415 main_v7419 main_v7420 (mulf : (⟨S4x256x16, .f32⟩ : BufTy).Contents (Elt F) → (⟨S4x256x16, .f32⟩ : BufTy).Contents (Elt F) → (⟨S4x256x16, .f32⟩ : BufTy).Contents (Elt F)),
    nullary main_cst_740 (constant S_ .f32 0x00000000#32),
    binary main_v7420 main_cst_740 main_v7421 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_741 (constantI S_ 32 370#32),
    unary main_c_741 main_v7422 (broadcastInDim S1 ![] bcast_S_S1 : (⟨S_, .i32⟩ : BufTy).Contents (Elt F) → (⟨S1, .i32⟩ : BufTy).Contents (Elt F)),
    ternary main_v7403 main_v7422 main_v7421 main_v7423 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps370_ok : (stepOps370 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step370_val (V : Valuation τ sig (Elt Ideal)) :
    after (stepOps370 (F := Ideal)) V (no_index (Proc.devRef .tc main_v7415)) = stepH 370 (by decide) (V (Proc.devRef .tc main_arg0)) (V (Proc.devRef .tc main_v3)) (V (Proc.devRef .tc main_arg2)) (V (Proc.devRef .tc main_v7395))
    ∧ after (stepOps370 (F := Ideal)) V (no_index (Proc.devRef .tc main_v7423)) = stepY 370 (by decide) (V (Proc.devRef .tc main_arg3)) (stepH 370 (by decide) (V (Proc.devRef .tc main_arg0)) (V (Proc.devRef .tc main_v3)) (V (Proc.devRef .tc main_arg2)) (V (Proc.devRef .tc main_v7395))) (V (Proc.devRef .tc main_v7403)) := by
  simp only [stepOps370]
  after_results_simp
  first | exact ⟨rfl, rfl⟩ | fail "value"
/-- Step 371 of the loop: operations 8169 … 8190 of the program. -/
abbrev stepOps371 : List (HloOp τ sig (Elt F)) :=
  [ unary main_v3 main_v7424 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7415 main_v7424 main_v7425 (mulf : (⟨S4x256x16, .f32⟩ : BufTy).Contents (Elt F) → (⟨S4x256x16, .f32⟩ : BufTy).Contents (Elt F) → (⟨S4x256x16, .f32⟩ : BufTy).Contents (Elt F)),
    unary main_arg0 main_v7426 ((extractStridedSlice S4x1x256 ![0, 371, 0] · slices_S4x512x256_S4x1x256_0_371_0) : (⟨S4x512x256, .f32⟩ : BufTy).Contents (Elt F) → (⟨S4x1x256, .f32⟩ : BufTy).Contents (Elt F)),
    reshape main_v7426 main_v7427 rfl shapeCasts_S4x1x256_S4x256,
    unary main_v7427 main_v7428 (broadcastInDim S4x256x1 ![0, 1] bcast_S4x256_S4x256x1_0_1 : (⟨S4x256, .f32⟩ : BufTy).Contents (Elt F) → (⟨S4x256x1, .f32⟩ : BufTy).Contents (Elt F)),
    unary main_arg2 main_v7429 ((extractStridedSlice S4x1x16 ![0, 371, 0] · slices_S4x512x16_S4x1x16_0_371_0) : (⟨S4x512x16, .f32⟩ : BufTy).Contents (Elt F) → (⟨S4x1x16, .f32⟩ : BufTy).Contents (Elt F)),
    reshape main_v7429 main_v7430 rfl shapeCasts_S4x1x16_S4x16,
    unary main_v7430 main_v7431 (broadcastInDim S4x1x16 ![0, 2] bcast_S4x16_S4x1x16_0_2 : (⟨S4x16, .f32⟩ : BufTy).Contents (Elt F) → (⟨S4x1x16, .f32⟩ : BufTy).Contents (Elt F)),
    unary main_v7428 main_v7432 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7431 main_v7433 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7432 main_v7433 main_v7434 (mulf : (⟨S4x256x16, .f32⟩ : BufTy).Contents (Elt F) → (⟨S4x256x16, .f32⟩ : BufTy).Contents (Elt F) → (⟨S4x256x16, .f32⟩ : BufTy).Contents (Elt F)),
    binary main_v7425 main_v7434 main_v7435 (addf : (⟨S4x256x16, .f32⟩ : BufTy).Contents (Elt F) → (⟨S4x256x16, .f32⟩ : BufTy).Contents (Elt F) → (⟨S4x256x16, .f32⟩ : BufTy).Contents (Elt F)),
    unary main_arg3 main_v7436 ((extractStridedSlice S4x1x16 ![0, 371, 0] · slices_S4x512x16_S4x1x16_0_371_0) : (⟨S4x512x16, .f32⟩ : BufTy).Contents (Elt F) → (⟨S4x1x16, .f32⟩ : BufTy).Contents (Elt F)),
    reshape main_v7436 main_v7437 rfl shapeCasts_S4x1x16_S4x16,
    unary main_v7437 main_v7438 (broadcastInDim S4x1x16 ![0, 2] bcast_S4x16_S4x1x16_0_2 : (⟨S4x16, .f32⟩ : BufTy).Contents (Elt F) → (⟨S4x1x16, .f32⟩ : BufTy).Contents (Elt F)),
    unary main_v7438 main_v7439 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7435 main_v7439 main_v7440 (mulf : (⟨S4x256x16, .f32⟩ : BufTy).Contents (Elt F) → (⟨S4x256x16, .f32⟩ : BufTy).Contents (Elt F) → (⟨S4x256x16, .f32⟩ : BufTy).Contents (Elt F)),
    nullary main_cst_742 (constant S_ .f32 0x00000000#32),
    binary main_v7440 main_cst_742 main_v7441 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_743 (constantI S_ 32 371#32),
    unary main_c_743 main_v7442 (broadcastInDim S1 ![] bcast_S_S1 : (⟨S_, .i32⟩ : BufTy).Contents (Elt F) → (⟨S1, .i32⟩ : BufTy).Contents (Elt F)),
    ternary main_v7423 main_v7442 main_v7441 main_v7443 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps371_ok : (stepOps371 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step371_val (V : Valuation τ sig (Elt Ideal)) :
    after (stepOps371 (F := Ideal)) V (no_index (Proc.devRef .tc main_v7435)) = stepH 371 (by decide) (V (Proc.devRef .tc main_arg0)) (V (Proc.devRef .tc main_v3)) (V (Proc.devRef .tc main_arg2)) (V (Proc.devRef .tc main_v7415))
    ∧ after (stepOps371 (F := Ideal)) V (no_index (Proc.devRef .tc main_v7443)) = stepY 371 (by decide) (V (Proc.devRef .tc main_arg3)) (stepH 371 (by decide) (V (Proc.devRef .tc main_arg0)) (V (Proc.devRef .tc main_v3)) (V (Proc.devRef .tc main_arg2)) (V (Proc.devRef .tc main_v7415))) (V (Proc.devRef .tc main_v7423)) := by
  simp only [stepOps371]
  after_results_simp
  first | exact ⟨rfl, rfl⟩ | fail "value"
/-- Step 372 of the loop: operations 8191 … 8212 of the program. -/
abbrev stepOps372 : List (HloOp τ sig (Elt F)) :=
  [ unary main_v3 main_v7444 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7435 main_v7444 main_v7445 (mulf : (⟨S4x256x16, .f32⟩ : BufTy).Contents (Elt F) → (⟨S4x256x16, .f32⟩ : BufTy).Contents (Elt F) → (⟨S4x256x16, .f32⟩ : BufTy).Contents (Elt F)),
    unary main_arg0 main_v7446 ((extractStridedSlice S4x1x256 ![0, 372, 0] · slices_S4x512x256_S4x1x256_0_372_0) : (⟨S4x512x256, .f32⟩ : BufTy).Contents (Elt F) → (⟨S4x1x256, .f32⟩ : BufTy).Contents (Elt F)),
    reshape main_v7446 main_v7447 rfl shapeCasts_S4x1x256_S4x256,
    unary main_v7447 main_v7448 (broadcastInDim S4x256x1 ![0, 1] bcast_S4x256_S4x256x1_0_1 : (⟨S4x256, .f32⟩ : BufTy).Contents (Elt F) → (⟨S4x256x1, .f32⟩ : BufTy).Contents (Elt F)),
    unary main_arg2 main_v7449 ((extractStridedSlice S4x1x16 ![0, 372, 0] · slices_S4x512x16_S4x1x16_0_372_0) : (⟨S4x512x16, .f32⟩ : BufTy).Contents (Elt F) → (⟨S4x1x16, .f32⟩ : BufTy).Contents (Elt F)),
    reshape main_v7449 main_v7450 rfl shapeCasts_S4x1x16_S4x16,
    unary main_v7450 main_v7451 (broadcastInDim S4x1x16 ![0, 2] bcast_S4x16_S4x1x16_0_2 : (⟨S4x16, .f32⟩ : BufTy).Contents (Elt F) → (⟨S4x1x16, .f32⟩ : BufTy).Contents (Elt F)),
    unary main_v7448 main_v7452 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7451 main_v7453 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7452 main_v7453 main_v7454 (mulf : (⟨S4x256x16, .f32⟩ : BufTy).Contents (Elt F) → (⟨S4x256x16, .f32⟩ : BufTy).Contents (Elt F) → (⟨S4x256x16, .f32⟩ : BufTy).Contents (Elt F)),
    binary main_v7445 main_v7454 main_v7455 (addf : (⟨S4x256x16, .f32⟩ : BufTy).Contents (Elt F) → (⟨S4x256x16, .f32⟩ : BufTy).Contents (Elt F) → (⟨S4x256x16, .f32⟩ : BufTy).Contents (Elt F)),
    unary main_arg3 main_v7456 ((extractStridedSlice S4x1x16 ![0, 372, 0] · slices_S4x512x16_S4x1x16_0_372_0) : (⟨S4x512x16, .f32⟩ : BufTy).Contents (Elt F) → (⟨S4x1x16, .f32⟩ : BufTy).Contents (Elt F)),
    reshape main_v7456 main_v7457 rfl shapeCasts_S4x1x16_S4x16,
    unary main_v7457 main_v7458 (broadcastInDim S4x1x16 ![0, 2] bcast_S4x16_S4x1x16_0_2 : (⟨S4x16, .f32⟩ : BufTy).Contents (Elt F) → (⟨S4x1x16, .f32⟩ : BufTy).Contents (Elt F)),
    unary main_v7458 main_v7459 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7455 main_v7459 main_v7460 (mulf : (⟨S4x256x16, .f32⟩ : BufTy).Contents (Elt F) → (⟨S4x256x16, .f32⟩ : BufTy).Contents (Elt F) → (⟨S4x256x16, .f32⟩ : BufTy).Contents (Elt F)),
    nullary main_cst_744 (constant S_ .f32 0x00000000#32),
    binary main_v7460 main_cst_744 main_v7461 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_745 (constantI S_ 32 372#32),
    unary main_c_745 main_v7462 (broadcastInDim S1 ![] bcast_S_S1 : (⟨S_, .i32⟩ : BufTy).Contents (Elt F) → (⟨S1, .i32⟩ : BufTy).Contents (Elt F)),
    ternary main_v7443 main_v7462 main_v7461 main_v7463 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps372_ok : (stepOps372 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step372_val (V : Valuation τ sig (Elt Ideal)) :
    after (stepOps372 (F := Ideal)) V (no_index (Proc.devRef .tc main_v7455)) = stepH 372 (by decide) (V (Proc.devRef .tc main_arg0)) (V (Proc.devRef .tc main_v3)) (V (Proc.devRef .tc main_arg2)) (V (Proc.devRef .tc main_v7435))
    ∧ after (stepOps372 (F := Ideal)) V (no_index (Proc.devRef .tc main_v7463)) = stepY 372 (by decide) (V (Proc.devRef .tc main_arg3)) (stepH 372 (by decide) (V (Proc.devRef .tc main_arg0)) (V (Proc.devRef .tc main_v3)) (V (Proc.devRef .tc main_arg2)) (V (Proc.devRef .tc main_v7435))) (V (Proc.devRef .tc main_v7443)) := by
  simp only [stepOps372]
  after_results_simp
  first | exact ⟨rfl, rfl⟩ | fail "value"
/-- Step 373 of the loop: operations 8213 … 8234 of the program. -/
abbrev stepOps373 : List (HloOp τ sig (Elt F)) :=
  [ unary main_v3 main_v7464 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7455 main_v7464 main_v7465 (mulf : (⟨S4x256x16, .f32⟩ : BufTy).Contents (Elt F) → (⟨S4x256x16, .f32⟩ : BufTy).Contents (Elt F) → (⟨S4x256x16, .f32⟩ : BufTy).Contents (Elt F)),
    unary main_arg0 main_v7466 ((extractStridedSlice S4x1x256 ![0, 373, 0] · slices_S4x512x256_S4x1x256_0_373_0) : (⟨S4x512x256, .f32⟩ : BufTy).Contents (Elt F) → (⟨S4x1x256, .f32⟩ : BufTy).Contents (Elt F)),
    reshape main_v7466 main_v7467 rfl shapeCasts_S4x1x256_S4x256,
    unary main_v7467 main_v7468 (broadcastInDim S4x256x1 ![0, 1] bcast_S4x256_S4x256x1_0_1 : (⟨S4x256, .f32⟩ : BufTy).Contents (Elt F) → (⟨S4x256x1, .f32⟩ : BufTy).Contents (Elt F)),
    unary main_arg2 main_v7469 ((extractStridedSlice S4x1x16 ![0, 373, 0] · slices_S4x512x16_S4x1x16_0_373_0) : (⟨S4x512x16, .f32⟩ : BufTy).Contents (Elt F) → (⟨S4x1x16, .f32⟩ : BufTy).Contents (Elt F)),
    reshape main_v7469 main_v7470 rfl shapeCasts_S4x1x16_S4x16,
    unary main_v7470 main_v7471 (broadcastInDim S4x1x16 ![0, 2] bcast_S4x16_S4x1x16_0_2 : (⟨S4x16, .f32⟩ : BufTy).Contents (Elt F) → (⟨S4x1x16, .f32⟩ : BufTy).Contents (Elt F)),
    unary main_v7468 main_v7472 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7471 main_v7473 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7472 main_v7473 main_v7474 (mulf : (⟨S4x256x16, .f32⟩ : BufTy).Contents (Elt F) → (⟨S4x256x16, .f32⟩ : BufTy).Contents (Elt F) → (⟨S4x256x16, .f32⟩ : BufTy).Contents (Elt F)),
    binary main_v7465 main_v7474 main_v7475 (addf : (⟨S4x256x16, .f32⟩ : BufTy).Contents (Elt F) → (⟨S4x256x16, .f32⟩ : BufTy).Contents (Elt F) → (⟨S4x256x16, .f32⟩ : BufTy).Contents (Elt F)),
    unary main_arg3 main_v7476 ((extractStridedSlice S4x1x16 ![0, 373, 0] · slices_S4x512x16_S4x1x16_0_373_0) : (⟨S4x512x16, .f32⟩ : BufTy).Contents (Elt F) → (⟨S4x1x16, .f32⟩ : BufTy).Contents (Elt F)),
    reshape main_v7476 main_v7477 rfl shapeCasts_S4x1x16_S4x16,
    unary main_v7477 main_v7478 (broadcastInDim S4x1x16 ![0, 2] bcast_S4x16_S4x1x16_0_2 : (⟨S4x16, .f32⟩ : BufTy).Contents (Elt F) → (⟨S4x1x16, .f32⟩ : BufTy).Contents (Elt F)),
    unary main_v7478 main_v7479 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7475 main_v7479 main_v7480 (mulf : (⟨S4x256x16, .f32⟩ : BufTy).Contents (Elt F) → (⟨S4x256x16, .f32⟩ : BufTy).Contents (Elt F) → (⟨S4x256x16, .f32⟩ : BufTy).Contents (Elt F)),
    nullary main_cst_746 (constant S_ .f32 0x00000000#32),
    binary main_v7480 main_cst_746 main_v7481 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_747 (constantI S_ 32 373#32),
    unary main_c_747 main_v7482 (broadcastInDim S1 ![] bcast_S_S1 : (⟨S_, .i32⟩ : BufTy).Contents (Elt F) → (⟨S1, .i32⟩ : BufTy).Contents (Elt F)),
    ternary main_v7463 main_v7482 main_v7481 main_v7483 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps373_ok : (stepOps373 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step373_val (V : Valuation τ sig (Elt Ideal)) :
    after (stepOps373 (F := Ideal)) V (no_index (Proc.devRef .tc main_v7475)) = stepH 373 (by decide) (V (Proc.devRef .tc main_arg0)) (V (Proc.devRef .tc main_v3)) (V (Proc.devRef .tc main_arg2)) (V (Proc.devRef .tc main_v7455))
    ∧ after (stepOps373 (F := Ideal)) V (no_index (Proc.devRef .tc main_v7483)) = stepY 373 (by decide) (V (Proc.devRef .tc main_arg3)) (stepH 373 (by decide) (V (Proc.devRef .tc main_arg0)) (V (Proc.devRef .tc main_v3)) (V (Proc.devRef .tc main_arg2)) (V (Proc.devRef .tc main_v7455))) (V (Proc.devRef .tc main_v7463)) := by
  simp only [stepOps373]
  after_results_simp
  first | exact ⟨rfl, rfl⟩ | fail "value"
/-- Step 374 of the loop: operations 8235 … 8256 of the program. -/
abbrev stepOps374 : List (HloOp τ sig (Elt F)) :=
  [ unary main_v3 main_v7484 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7475 main_v7484 main_v7485 (mulf : (⟨S4x256x16, .f32⟩ : BufTy).Contents (Elt F) → (⟨S4x256x16, .f32⟩ : BufTy).Contents (Elt F) → (⟨S4x256x16, .f32⟩ : BufTy).Contents (Elt F)),
    unary main_arg0 main_v7486 ((extractStridedSlice S4x1x256 ![0, 374, 0] · slices_S4x512x256_S4x1x256_0_374_0) : (⟨S4x512x256, .f32⟩ : BufTy).Contents (Elt F) → (⟨S4x1x256, .f32⟩ : BufTy).Contents (Elt F)),
    reshape main_v7486 main_v7487 rfl shapeCasts_S4x1x256_S4x256,
    unary main_v7487 main_v7488 (broadcastInDim S4x256x1 ![0, 1] bcast_S4x256_S4x256x1_0_1 : (⟨S4x256, .f32⟩ : BufTy).Contents (Elt F) → (⟨S4x256x1, .f32⟩ : BufTy).Contents (Elt F)),
    unary main_arg2 main_v7489 ((extractStridedSlice S4x1x16 ![0, 374, 0] · slices_S4x512x16_S4x1x16_0_374_0) : (⟨S4x512x16, .f32⟩ : BufTy).Contents (Elt F) → (⟨S4x1x16, .f32⟩ : BufTy).Contents (Elt F)),
    reshape main_v7489 main_v7490 rfl shapeCasts_S4x1x16_S4x16,
    unary main_v7490 main_v7491 (broadcastInDim S4x1x16 ![0, 2] bcast_S4x16_S4x1x16_0_2 : (⟨S4x16, .f32⟩ : BufTy).Contents (Elt F) → (⟨S4x1x16, .f32⟩ : BufTy).Contents (Elt F)),
    unary main_v7488 main_v7492 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7491 main_v7493 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7492 main_v7493 main_v7494 (mulf : (⟨S4x256x16, .f32⟩ : BufTy).Contents (Elt F) → (⟨S4x256x16, .f32⟩ : BufTy).Contents (Elt F) → (⟨S4x256x16, .f32⟩ : BufTy).Contents (Elt F)),
    binary main_v7485 main_v7494 main_v7495 (addf : (⟨S4x256x16, .f32⟩ : BufTy).Contents (Elt F) → (⟨S4x256x16, .f32⟩ : BufTy).Contents (Elt F) → (⟨S4x256x16, .f32⟩ : BufTy).Contents (Elt F)),
    unary main_arg3 main_v7496 ((extractStridedSlice S4x1x16 ![0, 374, 0] · slices_S4x512x16_S4x1x16_0_374_0) : (⟨S4x512x16, .f32⟩ : BufTy).Contents (Elt F) → (⟨S4x1x16, .f32⟩ : BufTy).Contents (Elt F)),
    reshape main_v7496 main_v7497 rfl shapeCasts_S4x1x16_S4x16,
    unary main_v7497 main_v7498 (broadcastInDim S4x1x16 ![0, 2] bcast_S4x16_S4x1x16_0_2 : (⟨S4x16, .f32⟩ : BufTy).Contents (Elt F) → (⟨S4x1x16, .f32⟩ : BufTy).Contents (Elt F)),
    unary main_v7498 main_v7499 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7495 main_v7499 main_v7500 (mulf : (⟨S4x256x16, .f32⟩ : BufTy).Contents (Elt F) → (⟨S4x256x16, .f32⟩ : BufTy).Contents (Elt F) → (⟨S4x256x16, .f32⟩ : BufTy).Contents (Elt F)),
    nullary main_cst_748 (constant S_ .f32 0x00000000#32),
    binary main_v7500 main_cst_748 main_v7501 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_749 (constantI S_ 32 374#32),
    unary main_c_749 main_v7502 (broadcastInDim S1 ![] bcast_S_S1 : (⟨S_, .i32⟩ : BufTy).Contents (Elt F) → (⟨S1, .i32⟩ : BufTy).Contents (Elt F)),
    ternary main_v7483 main_v7502 main_v7501 main_v7503 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps374_ok : (stepOps374 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step374_val (V : Valuation τ sig (Elt Ideal)) :
    after (stepOps374 (F := Ideal)) V (no_index (Proc.devRef .tc main_v7495)) = stepH 374 (by decide) (V (Proc.devRef .tc main_arg0)) (V (Proc.devRef .tc main_v3)) (V (Proc.devRef .tc main_arg2)) (V (Proc.devRef .tc main_v7475))
    ∧ after (stepOps374 (F := Ideal)) V (no_index (Proc.devRef .tc main_v7503)) = stepY 374 (by decide) (V (Proc.devRef .tc main_arg3)) (stepH 374 (by decide) (V (Proc.devRef .tc main_arg0)) (V (Proc.devRef .tc main_v3)) (V (Proc.devRef .tc main_arg2)) (V (Proc.devRef .tc main_v7475))) (V (Proc.devRef .tc main_v7483)) := by
  simp only [stepOps374]
  after_results_simp
  first | exact ⟨rfl, rfl⟩ | fail "value"
/-- Step 375 of the loop: operations 8257 … 8278 of the program. -/
abbrev stepOps375 : List (HloOp τ sig (Elt F)) :=
  [ unary main_v3 main_v7504 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7495 main_v7504 main_v7505 (mulf : (⟨S4x256x16, .f32⟩ : BufTy).Contents (Elt F) → (⟨S4x256x16, .f32⟩ : BufTy).Contents (Elt F) → (⟨S4x256x16, .f32⟩ : BufTy).Contents (Elt F)),
    unary main_arg0 main_v7506 ((extractStridedSlice S4x1x256 ![0, 375, 0] · slices_S4x512x256_S4x1x256_0_375_0) : (⟨S4x512x256, .f32⟩ : BufTy).Contents (Elt F) → (⟨S4x1x256, .f32⟩ : BufTy).Contents (Elt F)),
    reshape main_v7506 main_v7507 rfl shapeCasts_S4x1x256_S4x256,
    unary main_v7507 main_v7508 (broadcastInDim S4x256x1 ![0, 1] bcast_S4x256_S4x256x1_0_1 : (⟨S4x256, .f32⟩ : BufTy).Contents (Elt F) → (⟨S4x256x1, .f32⟩ : BufTy).Contents (Elt F)),
    unary main_arg2 main_v7509 ((extractStridedSlice S4x1x16 ![0, 375, 0] · slices_S4x512x16_S4x1x16_0_375_0) : (⟨S4x512x16, .f32⟩ : BufTy).Contents (Elt F) → (⟨S4x1x16, .f32⟩ : BufTy).Contents (Elt F)),
    reshape main_v7509 main_v7510 rfl shapeCasts_S4x1x16_S4x16,
    unary main_v7510 main_v7511 (broadcastInDim S4x1x16 ![0, 2] bcast_S4x16_S4x1x16_0_2 : (⟨S4x16, .f32⟩ : BufTy).Contents (Elt F) → (⟨S4x1x16, .f32⟩ : BufTy).Contents (Elt F)),
    unary main_v7508 main_v7512 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7511 main_v7513 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7512 main_v7513 main_v7514 (mulf : (⟨S4x256x16, .f32⟩ : BufTy).Contents (Elt F) → (⟨S4x256x16, .f32⟩ : BufTy).Contents (Elt F) → (⟨S4x256x16, .f32⟩ : BufTy).Contents (Elt F)),
    binary main_v7505 main_v7514 main_v7515 (addf : (⟨S4x256x16, .f32⟩ : BufTy).Contents (Elt F) → (⟨S4x256x16, .f32⟩ : BufTy).Contents (Elt F) → (⟨S4x256x16, .f32⟩ : BufTy).Contents (Elt F)),
    unary main_arg3 main_v7516 ((extractStridedSlice S4x1x16 ![0, 375, 0] · slices_S4x512x16_S4x1x16_0_375_0) : (⟨S4x512x16, .f32⟩ : BufTy).Contents (Elt F) → (⟨S4x1x16, .f32⟩ : BufTy).Contents (Elt F)),
    reshape main_v7516 main_v7517 rfl shapeCasts_S4x1x16_S4x16,
    unary main_v7517 main_v7518 (broadcastInDim S4x1x16 ![0, 2] bcast_S4x16_S4x1x16_0_2 : (⟨S4x16, .f32⟩ : BufTy).Contents (Elt F) → (⟨S4x1x16, .f32⟩ : BufTy).Contents (Elt F)),
    unary main_v7518 main_v7519 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7515 main_v7519 main_v7520 (mulf : (⟨S4x256x16, .f32⟩ : BufTy).Contents (Elt F) → (⟨S4x256x16, .f32⟩ : BufTy).Contents (Elt F) → (⟨S4x256x16, .f32⟩ : BufTy).Contents (Elt F)),
    nullary main_cst_750 (constant S_ .f32 0x00000000#32),
    binary main_v7520 main_cst_750 main_v7521 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_751 (constantI S_ 32 375#32),
    unary main_c_751 main_v7522 (broadcastInDim S1 ![] bcast_S_S1 : (⟨S_, .i32⟩ : BufTy).Contents (Elt F) → (⟨S1, .i32⟩ : BufTy).Contents (Elt F)),
    ternary main_v7503 main_v7522 main_v7521 main_v7523 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps375_ok : (stepOps375 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step375_val (V : Valuation τ sig (Elt Ideal)) :
    after (stepOps375 (F := Ideal)) V (no_index (Proc.devRef .tc main_v7515)) = stepH 375 (by decide) (V (Proc.devRef .tc main_arg0)) (V (Proc.devRef .tc main_v3)) (V (Proc.devRef .tc main_arg2)) (V (Proc.devRef .tc main_v7495))
    ∧ after (stepOps375 (F := Ideal)) V (no_index (Proc.devRef .tc main_v7523)) = stepY 375 (by decide) (V (Proc.devRef .tc main_arg3)) (stepH 375 (by decide) (V (Proc.devRef .tc main_arg0)) (V (Proc.devRef .tc main_v3)) (V (Proc.devRef .tc main_arg2)) (V (Proc.devRef .tc main_v7495))) (V (Proc.devRef .tc main_v7503)) := by
  simp only [stepOps375]
  after_results_simp
  first | exact ⟨rfl, rfl⟩ | fail "value"
/-- Step 376 of the loop: operations 8279 … 8300 of the program. -/
abbrev stepOps376 : List (HloOp τ sig (Elt F)) :=
  [ unary main_v3 main_v7524 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7515 main_v7524 main_v7525 (mulf : (⟨S4x256x16, .f32⟩ : BufTy).Contents (Elt F) → (⟨S4x256x16, .f32⟩ : BufTy).Contents (Elt F) → (⟨S4x256x16, .f32⟩ : BufTy).Contents (Elt F)),
    unary main_arg0 main_v7526 ((extractStridedSlice S4x1x256 ![0, 376, 0] · slices_S4x512x256_S4x1x256_0_376_0) : (⟨S4x512x256, .f32⟩ : BufTy).Contents (Elt F) → (⟨S4x1x256, .f32⟩ : BufTy).Contents (Elt F)),
    reshape main_v7526 main_v7527 rfl shapeCasts_S4x1x256_S4x256,
    unary main_v7527 main_v7528 (broadcastInDim S4x256x1 ![0, 1] bcast_S4x256_S4x256x1_0_1 : (⟨S4x256, .f32⟩ : BufTy).Contents (Elt F) → (⟨S4x256x1, .f32⟩ : BufTy).Contents (Elt F)),
    unary main_arg2 main_v7529 ((extractStridedSlice S4x1x16 ![0, 376, 0] · slices_S4x512x16_S4x1x16_0_376_0) : (⟨S4x512x16, .f32⟩ : BufTy).Contents (Elt F) → (⟨S4x1x16, .f32⟩ : BufTy).Contents (Elt F)),
    reshape main_v7529 main_v7530 rfl shapeCasts_S4x1x16_S4x16,
    unary main_v7530 main_v7531 (broadcastInDim S4x1x16 ![0, 2] bcast_S4x16_S4x1x16_0_2 : (⟨S4x16, .f32⟩ : BufTy).Contents (Elt F) → (⟨S4x1x16, .f32⟩ : BufTy).Contents (Elt F)),
    unary main_v7528 main_v7532 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7531 main_v7533 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7532 main_v7533 main_v7534 (mulf : (⟨S4x256x16, .f32⟩ : BufTy).Contents (Elt F) → (⟨S4x256x16, .f32⟩ : BufTy).Contents (Elt F) → (⟨S4x256x16, .f32⟩ : BufTy).Contents (Elt F)),
    binary main_v7525 main_v7534 main_v7535 (addf : (⟨S4x256x16, .f32⟩ : BufTy).Contents (Elt F) → (⟨S4x256x16, .f32⟩ : BufTy).Contents (Elt F) → (⟨S4x256x16, .f32⟩ : BufTy).Contents (Elt F)),
    unary main_arg3 main_v7536 ((extractStridedSlice S4x1x16 ![0, 376, 0] · slices_S4x512x16_S4x1x16_0_376_0) : (⟨S4x512x16, .f32⟩ : BufTy).Contents (Elt F) → (⟨S4x1x16, .f32⟩ : BufTy).Contents (Elt F)),
    reshape main_v7536 main_v7537 rfl shapeCasts_S4x1x16_S4x16,
    unary main_v7537 main_v7538 (broadcastInDim S4x1x16 ![0, 2] bcast_S4x16_S4x1x16_0_2 : (⟨S4x16, .f32⟩ : BufTy).Contents (Elt F) → (⟨S4x1x16, .f32⟩ : BufTy).Contents (Elt F)),
    unary main_v7538 main_v7539 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7535 main_v7539 main_v7540 (mulf : (⟨S4x256x16, .f32⟩ : BufTy).Contents (Elt F) → (⟨S4x256x16, .f32⟩ : BufTy).Contents (Elt F) → (⟨S4x256x16, .f32⟩ : BufTy).Contents (Elt F)),
    nullary main_cst_752 (constant S_ .f32 0x00000000#32),
    binary main_v7540 main_cst_752 main_v7541 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_753 (constantI S_ 32 376#32),
    unary main_c_753 main_v7542 (broadcastInDim S1 ![] bcast_S_S1 : (⟨S_, .i32⟩ : BufTy).Contents (Elt F) → (⟨S1, .i32⟩ : BufTy).Contents (Elt F)),
    ternary main_v7523 main_v7542 main_v7541 main_v7543 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps376_ok : (stepOps376 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step376_val (V : Valuation τ sig (Elt Ideal)) :
    after (stepOps376 (F := Ideal)) V (no_index (Proc.devRef .tc main_v7535)) = stepH 376 (by decide) (V (Proc.devRef .tc main_arg0)) (V (Proc.devRef .tc main_v3)) (V (Proc.devRef .tc main_arg2)) (V (Proc.devRef .tc main_v7515))
    ∧ after (stepOps376 (F := Ideal)) V (no_index (Proc.devRef .tc main_v7543)) = stepY 376 (by decide) (V (Proc.devRef .tc main_arg3)) (stepH 376 (by decide) (V (Proc.devRef .tc main_arg0)) (V (Proc.devRef .tc main_v3)) (V (Proc.devRef .tc main_arg2)) (V (Proc.devRef .tc main_v7515))) (V (Proc.devRef .tc main_v7523)) := by
  simp only [stepOps376]
  after_results_simp
  first | exact ⟨rfl, rfl⟩ | fail "value"
/-- Step 377 of the loop: operations 8301 … 8322 of the program. -/
abbrev stepOps377 : List (HloOp τ sig (Elt F)) :=
  [ unary main_v3 main_v7544 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7535 main_v7544 main_v7545 (mulf : (⟨S4x256x16, .f32⟩ : BufTy).Contents (Elt F) → (⟨S4x256x16, .f32⟩ : BufTy).Contents (Elt F) → (⟨S4x256x16, .f32⟩ : BufTy).Contents (Elt F)),
    unary main_arg0 main_v7546 ((extractStridedSlice S4x1x256 ![0, 377, 0] · slices_S4x512x256_S4x1x256_0_377_0) : (⟨S4x512x256, .f32⟩ : BufTy).Contents (Elt F) → (⟨S4x1x256, .f32⟩ : BufTy).Contents (Elt F)),
    reshape main_v7546 main_v7547 rfl shapeCasts_S4x1x256_S4x256,
    unary main_v7547 main_v7548 (broadcastInDim S4x256x1 ![0, 1] bcast_S4x256_S4x256x1_0_1 : (⟨S4x256, .f32⟩ : BufTy).Contents (Elt F) → (⟨S4x256x1, .f32⟩ : BufTy).Contents (Elt F)),
    unary main_arg2 main_v7549 ((extractStridedSlice S4x1x16 ![0, 377, 0] · slices_S4x512x16_S4x1x16_0_377_0) : (⟨S4x512x16, .f32⟩ : BufTy).Contents (Elt F) → (⟨S4x1x16, .f32⟩ : BufTy).Contents (Elt F)),
    reshape main_v7549 main_v7550 rfl shapeCasts_S4x1x16_S4x16,
    unary main_v7550 main_v7551 (broadcastInDim S4x1x16 ![0, 2] bcast_S4x16_S4x1x16_0_2 : (⟨S4x16, .f32⟩ : BufTy).Contents (Elt F) → (⟨S4x1x16, .f32⟩ : BufTy).Contents (Elt F)),
    unary main_v7548 main_v7552 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7551 main_v7553 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7552 main_v7553 main_v7554 (mulf : (⟨S4x256x16, .f32⟩ : BufTy).Contents (Elt F) → (⟨S4x256x16, .f32⟩ : BufTy).Contents (Elt F) → (⟨S4x256x16, .f32⟩ : BufTy).Contents (Elt F)),
    binary main_v7545 main_v7554 main_v7555 (addf : (⟨S4x256x16, .f32⟩ : BufTy).Contents (Elt F) → (⟨S4x256x16, .f32⟩ : BufTy).Contents (Elt F) → (⟨S4x256x16, .f32⟩ : BufTy).Contents (Elt F)),
    unary main_arg3 main_v7556 ((extractStridedSlice S4x1x16 ![0, 377, 0] · slices_S4x512x16_S4x1x16_0_377_0) : (⟨S4x512x16, .f32⟩ : BufTy).Contents (Elt F) → (⟨S4x1x16, .f32⟩ : BufTy).Contents (Elt F)),
    reshape main_v7556 main_v7557 rfl shapeCasts_S4x1x16_S4x16,
    unary main_v7557 main_v7558 (broadcastInDim S4x1x16 ![0, 2] bcast_S4x16_S4x1x16_0_2 : (⟨S4x16, .f32⟩ : BufTy).Contents (Elt F) → (⟨S4x1x16, .f32⟩ : BufTy).Contents (Elt F)),
    unary main_v7558 main_v7559 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7555 main_v7559 main_v7560 (mulf : (⟨S4x256x16, .f32⟩ : BufTy).Contents (Elt F) → (⟨S4x256x16, .f32⟩ : BufTy).Contents (Elt F) → (⟨S4x256x16, .f32⟩ : BufTy).Contents (Elt F)),
    nullary main_cst_754 (constant S_ .f32 0x00000000#32),
    binary main_v7560 main_cst_754 main_v7561 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_755 (constantI S_ 32 377#32),
    unary main_c_755 main_v7562 (broadcastInDim S1 ![] bcast_S_S1 : (⟨S_, .i32⟩ : BufTy).Contents (Elt F) → (⟨S1, .i32⟩ : BufTy).Contents (Elt F)),
    ternary main_v7543 main_v7562 main_v7561 main_v7563 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps377_ok : (stepOps377 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step377_val (V : Valuation τ sig (Elt Ideal)) :
    after (stepOps377 (F := Ideal)) V (no_index (Proc.devRef .tc main_v7555)) = stepH 377 (by decide) (V (Proc.devRef .tc main_arg0)) (V (Proc.devRef .tc main_v3)) (V (Proc.devRef .tc main_arg2)) (V (Proc.devRef .tc main_v7535))
    ∧ after (stepOps377 (F := Ideal)) V (no_index (Proc.devRef .tc main_v7563)) = stepY 377 (by decide) (V (Proc.devRef .tc main_arg3)) (stepH 377 (by decide) (V (Proc.devRef .tc main_arg0)) (V (Proc.devRef .tc main_v3)) (V (Proc.devRef .tc main_arg2)) (V (Proc.devRef .tc main_v7535))) (V (Proc.devRef .tc main_v7543)) := by
  simp only [stepOps377]
  after_results_simp
  first | exact ⟨rfl, rfl⟩ | fail "value"
/-- Step 378 of the loop: operations 8323 … 8344 of the program. -/
abbrev stepOps378 : List (HloOp τ sig (Elt F)) :=
  [ unary main_v3 main_v7564 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7555 main_v7564 main_v7565 (mulf : (⟨S4x256x16, .f32⟩ : BufTy).Contents (Elt F) → (⟨S4x256x16, .f32⟩ : BufTy).Contents (Elt F) → (⟨S4x256x16, .f32⟩ : BufTy).Contents (Elt F)),
    unary main_arg0 main_v7566 ((extractStridedSlice S4x1x256 ![0, 378, 0] · slices_S4x512x256_S4x1x256_0_378_0) : (⟨S4x512x256, .f32⟩ : BufTy).Contents (Elt F) → (⟨S4x1x256, .f32⟩ : BufTy).Contents (Elt F)),
    reshape main_v7566 main_v7567 rfl shapeCasts_S4x1x256_S4x256,
    unary main_v7567 main_v7568 (broadcastInDim S4x256x1 ![0, 1] bcast_S4x256_S4x256x1_0_1 : (⟨S4x256, .f32⟩ : BufTy).Contents (Elt F) → (⟨S4x256x1, .f32⟩ : BufTy).Contents (Elt F)),
    unary main_arg2 main_v7569 ((extractStridedSlice S4x1x16 ![0, 378, 0] · slices_S4x512x16_S4x1x16_0_378_0) : (⟨S4x512x16, .f32⟩ : BufTy).Contents (Elt F) → (⟨S4x1x16, .f32⟩ : BufTy).Contents (Elt F)),
    reshape main_v7569 main_v7570 rfl shapeCasts_S4x1x16_S4x16,
    unary main_v7570 main_v7571 (broadcastInDim S4x1x16 ![0, 2] bcast_S4x16_S4x1x16_0_2 : (⟨S4x16, .f32⟩ : BufTy).Contents (Elt F) → (⟨S4x1x16, .f32⟩ : BufTy).Contents (Elt F)),
    unary main_v7568 main_v7572 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7571 main_v7573 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7572 main_v7573 main_v7574 (mulf : (⟨S4x256x16, .f32⟩ : BufTy).Contents (Elt F) → (⟨S4x256x16, .f32⟩ : BufTy).Contents (Elt F) → (⟨S4x256x16, .f32⟩ : BufTy).Contents (Elt F)),
    binary main_v7565 main_v7574 main_v7575 (addf : (⟨S4x256x16, .f32⟩ : BufTy).Contents (Elt F) → (⟨S4x256x16, .f32⟩ : BufTy).Contents (Elt F) → (⟨S4x256x16, .f32⟩ : BufTy).Contents (Elt F)),
    unary main_arg3 main_v7576 ((extractStridedSlice S4x1x16 ![0, 378, 0] · slices_S4x512x16_S4x1x16_0_378_0) : (⟨S4x512x16, .f32⟩ : BufTy).Contents (Elt F) → (⟨S4x1x16, .f32⟩ : BufTy).Contents (Elt F)),
    reshape main_v7576 main_v7577 rfl shapeCasts_S4x1x16_S4x16,
    unary main_v7577 main_v7578 (broadcastInDim S4x1x16 ![0, 2] bcast_S4x16_S4x1x16_0_2 : (⟨S4x16, .f32⟩ : BufTy).Contents (Elt F) → (⟨S4x1x16, .f32⟩ : BufTy).Contents (Elt F)),
    unary main_v7578 main_v7579 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7575 main_v7579 main_v7580 (mulf : (⟨S4x256x16, .f32⟩ : BufTy).Contents (Elt F) → (⟨S4x256x16, .f32⟩ : BufTy).Contents (Elt F) → (⟨S4x256x16, .f32⟩ : BufTy).Contents (Elt F)),
    nullary main_cst_756 (constant S_ .f32 0x00000000#32),
    binary main_v7580 main_cst_756 main_v7581 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_757 (constantI S_ 32 378#32),
    unary main_c_757 main_v7582 (broadcastInDim S1 ![] bcast_S_S1 : (⟨S_, .i32⟩ : BufTy).Contents (Elt F) → (⟨S1, .i32⟩ : BufTy).Contents (Elt F)),
    ternary main_v7563 main_v7582 main_v7581 main_v7583 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps378_ok : (stepOps378 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step378_val (V : Valuation τ sig (Elt Ideal)) :
    after (stepOps378 (F := Ideal)) V (no_index (Proc.devRef .tc main_v7575)) = stepH 378 (by decide) (V (Proc.devRef .tc main_arg0)) (V (Proc.devRef .tc main_v3)) (V (Proc.devRef .tc main_arg2)) (V (Proc.devRef .tc main_v7555))
    ∧ after (stepOps378 (F := Ideal)) V (no_index (Proc.devRef .tc main_v7583)) = stepY 378 (by decide) (V (Proc.devRef .tc main_arg3)) (stepH 378 (by decide) (V (Proc.devRef .tc main_arg0)) (V (Proc.devRef .tc main_v3)) (V (Proc.devRef .tc main_arg2)) (V (Proc.devRef .tc main_v7555))) (V (Proc.devRef .tc main_v7563)) := by
  simp only [stepOps378]
  after_results_simp
  first | exact ⟨rfl, rfl⟩ | fail "value"
/-- Step 379 of the loop: operations 8345 … 8366 of the program. -/
abbrev stepOps379 : List (HloOp τ sig (Elt F)) :=
  [ unary main_v3 main_v7584 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7575 main_v7584 main_v7585 (mulf : (⟨S4x256x16, .f32⟩ : BufTy).Contents (Elt F) → (⟨S4x256x16, .f32⟩ : BufTy).Contents (Elt F) → (⟨S4x256x16, .f32⟩ : BufTy).Contents (Elt F)),
    unary main_arg0 main_v7586 ((extractStridedSlice S4x1x256 ![0, 379, 0] · slices_S4x512x256_S4x1x256_0_379_0) : (⟨S4x512x256, .f32⟩ : BufTy).Contents (Elt F) → (⟨S4x1x256, .f32⟩ : BufTy).Contents (Elt F)),
    reshape main_v7586 main_v7587 rfl shapeCasts_S4x1x256_S4x256,
    unary main_v7587 main_v7588 (broadcastInDim S4x256x1 ![0, 1] bcast_S4x256_S4x256x1_0_1 : (⟨S4x256, .f32⟩ : BufTy).Contents (Elt F) → (⟨S4x256x1, .f32⟩ : BufTy).Contents (Elt F)),
    unary main_arg2 main_v7589 ((extractStridedSlice S4x1x16 ![0, 379, 0] · slices_S4x512x16_S4x1x16_0_379_0) : (⟨S4x512x16, .f32⟩ : BufTy).Contents (Elt F) → (⟨S4x1x16, .f32⟩ : BufTy).Contents (Elt F)),
    reshape main_v7589 main_v7590 rfl shapeCasts_S4x1x16_S4x16,
    unary main_v7590 main_v7591 (broadcastInDim S4x1x16 ![0, 2] bcast_S4x16_S4x1x16_0_2 : (⟨S4x16, .f32⟩ : BufTy).Contents (Elt F) → (⟨S4x1x16, .f32⟩ : BufTy).Contents (Elt F)),
    unary main_v7588 main_v7592 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7591 main_v7593 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7592 main_v7593 main_v7594 (mulf : (⟨S4x256x16, .f32⟩ : BufTy).Contents (Elt F) → (⟨S4x256x16, .f32⟩ : BufTy).Contents (Elt F) → (⟨S4x256x16, .f32⟩ : BufTy).Contents (Elt F)),
    binary main_v7585 main_v7594 main_v7595 (addf : (⟨S4x256x16, .f32⟩ : BufTy).Contents (Elt F) → (⟨S4x256x16, .f32⟩ : BufTy).Contents (Elt F) → (⟨S4x256x16, .f32⟩ : BufTy).Contents (Elt F)),
    unary main_arg3 main_v7596 ((extractStridedSlice S4x1x16 ![0, 379, 0] · slices_S4x512x16_S4x1x16_0_379_0) : (⟨S4x512x16, .f32⟩ : BufTy).Contents (Elt F) → (⟨S4x1x16, .f32⟩ : BufTy).Contents (Elt F)),
    reshape main_v7596 main_v7597 rfl shapeCasts_S4x1x16_S4x16,
    unary main_v7597 main_v7598 (broadcastInDim S4x1x16 ![0, 2] bcast_S4x16_S4x1x16_0_2 : (⟨S4x16, .f32⟩ : BufTy).Contents (Elt F) → (⟨S4x1x16, .f32⟩ : BufTy).Contents (Elt F)),
    unary main_v7598 main_v7599 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7595 main_v7599 main_v7600 (mulf : (⟨S4x256x16, .f32⟩ : BufTy).Contents (Elt F) → (⟨S4x256x16, .f32⟩ : BufTy).Contents (Elt F) → (⟨S4x256x16, .f32⟩ : BufTy).Contents (Elt F)),
    nullary main_cst_758 (constant S_ .f32 0x00000000#32),
    binary main_v7600 main_cst_758 main_v7601 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_759 (constantI S_ 32 379#32),
    unary main_c_759 main_v7602 (broadcastInDim S1 ![] bcast_S_S1 : (⟨S_, .i32⟩ : BufTy).Contents (Elt F) → (⟨S1, .i32⟩ : BufTy).Contents (Elt F)),
    ternary main_v7583 main_v7602 main_v7601 main_v7603 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps379_ok : (stepOps379 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step379_val (V : Valuation τ sig (Elt Ideal)) :
    after (stepOps379 (F := Ideal)) V (no_index (Proc.devRef .tc main_v7595)) = stepH 379 (by decide) (V (Proc.devRef .tc main_arg0)) (V (Proc.devRef .tc main_v3)) (V (Proc.devRef .tc main_arg2)) (V (Proc.devRef .tc main_v7575))
    ∧ after (stepOps379 (F := Ideal)) V (no_index (Proc.devRef .tc main_v7603)) = stepY 379 (by decide) (V (Proc.devRef .tc main_arg3)) (stepH 379 (by decide) (V (Proc.devRef .tc main_arg0)) (V (Proc.devRef .tc main_v3)) (V (Proc.devRef .tc main_arg2)) (V (Proc.devRef .tc main_v7575))) (V (Proc.devRef .tc main_v7583)) := by
  simp only [stepOps379]
  after_results_simp
  first | exact ⟨rfl, rfl⟩ | fail "value"
/-- Step 380 of the loop: operations 8367 … 8388 of the program. -/
abbrev stepOps380 : List (HloOp τ sig (Elt F)) :=
  [ unary main_v3 main_v7604 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7595 main_v7604 main_v7605 (mulf : (⟨S4x256x16, .f32⟩ : BufTy).Contents (Elt F) → (⟨S4x256x16, .f32⟩ : BufTy).Contents (Elt F) → (⟨S4x256x16, .f32⟩ : BufTy).Contents (Elt F)),
    unary main_arg0 main_v7606 ((extractStridedSlice S4x1x256 ![0, 380, 0] · slices_S4x512x256_S4x1x256_0_380_0) : (⟨S4x512x256, .f32⟩ : BufTy).Contents (Elt F) → (⟨S4x1x256, .f32⟩ : BufTy).Contents (Elt F)),
    reshape main_v7606 main_v7607 rfl shapeCasts_S4x1x256_S4x256,
    unary main_v7607 main_v7608 (broadcastInDim S4x256x1 ![0, 1] bcast_S4x256_S4x256x1_0_1 : (⟨S4x256, .f32⟩ : BufTy).Contents (Elt F) → (⟨S4x256x1, .f32⟩ : BufTy).Contents (Elt F)),
    unary main_arg2 main_v7609 ((extractStridedSlice S4x1x16 ![0, 380, 0] · slices_S4x512x16_S4x1x16_0_380_0) : (⟨S4x512x16, .f32⟩ : BufTy).Contents (Elt F) → (⟨S4x1x16, .f32⟩ : BufTy).Contents (Elt F)),
    reshape main_v7609 main_v7610 rfl shapeCasts_S4x1x16_S4x16,
    unary main_v7610 main_v7611 (broadcastInDim S4x1x16 ![0, 2] bcast_S4x16_S4x1x16_0_2 : (⟨S4x16, .f32⟩ : BufTy).Contents (Elt F) → (⟨S4x1x16, .f32⟩ : BufTy).Contents (Elt F)),
    unary main_v7608 main_v7612 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7611 main_v7613 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7612 main_v7613 main_v7614 (mulf : (⟨S4x256x16, .f32⟩ : BufTy).Contents (Elt F) → (⟨S4x256x16, .f32⟩ : BufTy).Contents (Elt F) → (⟨S4x256x16, .f32⟩ : BufTy).Contents (Elt F)),
    binary main_v7605 main_v7614 main_v7615 (addf : (⟨S4x256x16, .f32⟩ : BufTy).Contents (Elt F) → (⟨S4x256x16, .f32⟩ : BufTy).Contents (Elt F) → (⟨S4x256x16, .f32⟩ : BufTy).Contents (Elt F)),
    unary main_arg3 main_v7616 ((extractStridedSlice S4x1x16 ![0, 380, 0] · slices_S4x512x16_S4x1x16_0_380_0) : (⟨S4x512x16, .f32⟩ : BufTy).Contents (Elt F) → (⟨S4x1x16, .f32⟩ : BufTy).Contents (Elt F)),
    reshape main_v7616 main_v7617 rfl shapeCasts_S4x1x16_S4x16,
    unary main_v7617 main_v7618 (broadcastInDim S4x1x16 ![0, 2] bcast_S4x16_S4x1x16_0_2 : (⟨S4x16, .f32⟩ : BufTy).Contents (Elt F) → (⟨S4x1x16, .f32⟩ : BufTy).Contents (Elt F)),
    unary main_v7618 main_v7619 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7615 main_v7619 main_v7620 (mulf : (⟨S4x256x16, .f32⟩ : BufTy).Contents (Elt F) → (⟨S4x256x16, .f32⟩ : BufTy).Contents (Elt F) → (⟨S4x256x16, .f32⟩ : BufTy).Contents (Elt F)),
    nullary main_cst_760 (constant S_ .f32 0x00000000#32),
    binary main_v7620 main_cst_760 main_v7621 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_761 (constantI S_ 32 380#32),
    unary main_c_761 main_v7622 (broadcastInDim S1 ![] bcast_S_S1 : (⟨S_, .i32⟩ : BufTy).Contents (Elt F) → (⟨S1, .i32⟩ : BufTy).Contents (Elt F)),
    ternary main_v7603 main_v7622 main_v7621 main_v7623 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps380_ok : (stepOps380 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step380_val (V : Valuation τ sig (Elt Ideal)) :
    after (stepOps380 (F := Ideal)) V (no_index (Proc.devRef .tc main_v7615)) = stepH 380 (by decide) (V (Proc.devRef .tc main_arg0)) (V (Proc.devRef .tc main_v3)) (V (Proc.devRef .tc main_arg2)) (V (Proc.devRef .tc main_v7595))
    ∧ after (stepOps380 (F := Ideal)) V (no_index (Proc.devRef .tc main_v7623)) = stepY 380 (by decide) (V (Proc.devRef .tc main_arg3)) (stepH 380 (by decide) (V (Proc.devRef .tc main_arg0)) (V (Proc.devRef .tc main_v3)) (V (Proc.devRef .tc main_arg2)) (V (Proc.devRef .tc main_v7595))) (V (Proc.devRef .tc main_v7603)) := by
  simp only [stepOps380]
  after_results_simp
  first | exact ⟨rfl, rfl⟩ | fail "value"
/-- Step 381 of the loop: operations 8389 … 8410 of the program. -/
abbrev stepOps381 : List (HloOp τ sig (Elt F)) :=
  [ unary main_v3 main_v7624 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7615 main_v7624 main_v7625 (mulf : (⟨S4x256x16, .f32⟩ : BufTy).Contents (Elt F) → (⟨S4x256x16, .f32⟩ : BufTy).Contents (Elt F) → (⟨S4x256x16, .f32⟩ : BufTy).Contents (Elt F)),
    unary main_arg0 main_v7626 ((extractStridedSlice S4x1x256 ![0, 381, 0] · slices_S4x512x256_S4x1x256_0_381_0) : (⟨S4x512x256, .f32⟩ : BufTy).Contents (Elt F) → (⟨S4x1x256, .f32⟩ : BufTy).Contents (Elt F)),
    reshape main_v7626 main_v7627 rfl shapeCasts_S4x1x256_S4x256,
    unary main_v7627 main_v7628 (broadcastInDim S4x256x1 ![0, 1] bcast_S4x256_S4x256x1_0_1 : (⟨S4x256, .f32⟩ : BufTy).Contents (Elt F) → (⟨S4x256x1, .f32⟩ : BufTy).Contents (Elt F)),
    unary main_arg2 main_v7629 ((extractStridedSlice S4x1x16 ![0, 381, 0] · slices_S4x512x16_S4x1x16_0_381_0) : (⟨S4x512x16, .f32⟩ : BufTy).Contents (Elt F) → (⟨S4x1x16, .f32⟩ : BufTy).Contents (Elt F)),
    reshape main_v7629 main_v7630 rfl shapeCasts_S4x1x16_S4x16,
    unary main_v7630 main_v7631 (broadcastInDim S4x1x16 ![0, 2] bcast_S4x16_S4x1x16_0_2 : (⟨S4x16, .f32⟩ : BufTy).Contents (Elt F) → (⟨S4x1x16, .f32⟩ : BufTy).Contents (Elt F)),
    unary main_v7628 main_v7632 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7631 main_v7633 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7632 main_v7633 main_v7634 (mulf : (⟨S4x256x16, .f32⟩ : BufTy).Contents (Elt F) → (⟨S4x256x16, .f32⟩ : BufTy).Contents (Elt F) → (⟨S4x256x16, .f32⟩ : BufTy).Contents (Elt F)),
    binary main_v7625 main_v7634 main_v7635 (addf : (⟨S4x256x16, .f32⟩ : BufTy).Contents (Elt F) → (⟨S4x256x16, .f32⟩ : BufTy).Contents (Elt F) → (⟨S4x256x16, .f32⟩ : BufTy).Contents (Elt F)),
    unary main_arg3 main_v7636 ((extractStridedSlice S4x1x16 ![0, 381, 0] · slices_S4x512x16_S4x1x16_0_381_0) : (⟨S4x512x16, .f32⟩ : BufTy).Contents (Elt F) → (⟨S4x1x16, .f32⟩ : BufTy).Contents (Elt F)),
    reshape main_v7636 main_v7637 rfl shapeCasts_S4x1x16_S4x16,
    unary main_v7637 main_v7638 (broadcastInDim S4x1x16 ![0, 2] bcast_S4x16_S4x1x16_0_2 : (⟨S4x16, .f32⟩ : BufTy).Contents (Elt F) → (⟨S4x1x16, .f32⟩ : BufTy).Contents (Elt F)),
    unary main_v7638 main_v7639 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7635 main_v7639 main_v7640 (mulf : (⟨S4x256x16, .f32⟩ : BufTy).Contents (Elt F) → (⟨S4x256x16, .f32⟩ : BufTy).Contents (Elt F) → (⟨S4x256x16, .f32⟩ : BufTy).Contents (Elt F)),
    nullary main_cst_762 (constant S_ .f32 0x00000000#32),
    binary main_v7640 main_cst_762 main_v7641 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_763 (constantI S_ 32 381#32),
    unary main_c_763 main_v7642 (broadcastInDim S1 ![] bcast_S_S1 : (⟨S_, .i32⟩ : BufTy).Contents (Elt F) → (⟨S1, .i32⟩ : BufTy).Contents (Elt F)),
    ternary main_v7623 main_v7642 main_v7641 main_v7643 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps381_ok : (stepOps381 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step381_val (V : Valuation τ sig (Elt Ideal)) :
    after (stepOps381 (F := Ideal)) V (no_index (Proc.devRef .tc main_v7635)) = stepH 381 (by decide) (V (Proc.devRef .tc main_arg0)) (V (Proc.devRef .tc main_v3)) (V (Proc.devRef .tc main_arg2)) (V (Proc.devRef .tc main_v7615))
    ∧ after (stepOps381 (F := Ideal)) V (no_index (Proc.devRef .tc main_v7643)) = stepY 381 (by decide) (V (Proc.devRef .tc main_arg3)) (stepH 381 (by decide) (V (Proc.devRef .tc main_arg0)) (V (Proc.devRef .tc main_v3)) (V (Proc.devRef .tc main_arg2)) (V (Proc.devRef .tc main_v7615))) (V (Proc.devRef .tc main_v7623)) := by
  simp only [stepOps381]
  after_results_simp
  first | exact ⟨rfl, rfl⟩ | fail "value"
/-- Step 382 of the loop: operations 8411 … 8432 of the program. -/
abbrev stepOps382 : List (HloOp τ sig (Elt F)) :=
  [ unary main_v3 main_v7644 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7635 main_v7644 main_v7645 (mulf : (⟨S4x256x16, .f32⟩ : BufTy).Contents (Elt F) → (⟨S4x256x16, .f32⟩ : BufTy).Contents (Elt F) → (⟨S4x256x16, .f32⟩ : BufTy).Contents (Elt F)),
    unary main_arg0 main_v7646 ((extractStridedSlice S4x1x256 ![0, 382, 0] · slices_S4x512x256_S4x1x256_0_382_0) : (⟨S4x512x256, .f32⟩ : BufTy).Contents (Elt F) → (⟨S4x1x256, .f32⟩ : BufTy).Contents (Elt F)),
    reshape main_v7646 main_v7647 rfl shapeCasts_S4x1x256_S4x256,
    unary main_v7647 main_v7648 (broadcastInDim S4x256x1 ![0, 1] bcast_S4x256_S4x256x1_0_1 : (⟨S4x256, .f32⟩ : BufTy).Contents (Elt F) → (⟨S4x256x1, .f32⟩ : BufTy).Contents (Elt F)),
    unary main_arg2 main_v7649 ((extractStridedSlice S4x1x16 ![0, 382, 0] · slices_S4x512x16_S4x1x16_0_382_0) : (⟨S4x512x16, .f32⟩ : BufTy).Contents (Elt F) → (⟨S4x1x16, .f32⟩ : BufTy).Contents (Elt F)),
    reshape main_v7649 main_v7650 rfl shapeCasts_S4x1x16_S4x16,
    unary main_v7650 main_v7651 (broadcastInDim S4x1x16 ![0, 2] bcast_S4x16_S4x1x16_0_2 : (⟨S4x16, .f32⟩ : BufTy).Contents (Elt F) → (⟨S4x1x16, .f32⟩ : BufTy).Contents (Elt F)),
    unary main_v7648 main_v7652 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7651 main_v7653 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7652 main_v7653 main_v7654 (mulf : (⟨S4x256x16, .f32⟩ : BufTy).Contents (Elt F) → (⟨S4x256x16, .f32⟩ : BufTy).Contents (Elt F) → (⟨S4x256x16, .f32⟩ : BufTy).Contents (Elt F)),
    binary main_v7645 main_v7654 main_v7655 (addf : (⟨S4x256x16, .f32⟩ : BufTy).Contents (Elt F) → (⟨S4x256x16, .f32⟩ : BufTy).Contents (Elt F) → (⟨S4x256x16, .f32⟩ : BufTy).Contents (Elt F)),
    unary main_arg3 main_v7656 ((extractStridedSlice S4x1x16 ![0, 382, 0] · slices_S4x512x16_S4x1x16_0_382_0) : (⟨S4x512x16, .f32⟩ : BufTy).Contents (Elt F) → (⟨S4x1x16, .f32⟩ : BufTy).Contents (Elt F)),
    reshape main_v7656 main_v7657 rfl shapeCasts_S4x1x16_S4x16,
    unary main_v7657 main_v7658 (broadcastInDim S4x1x16 ![0, 2] bcast_S4x16_S4x1x16_0_2 : (⟨S4x16, .f32⟩ : BufTy).Contents (Elt F) → (⟨S4x1x16, .f32⟩ : BufTy).Contents (Elt F)),
    unary main_v7658 main_v7659 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7655 main_v7659 main_v7660 (mulf : (⟨S4x256x16, .f32⟩ : BufTy).Contents (Elt F) → (⟨S4x256x16, .f32⟩ : BufTy).Contents (Elt F) → (⟨S4x256x16, .f32⟩ : BufTy).Contents (Elt F)),
    nullary main_cst_764 (constant S_ .f32 0x00000000#32),
    binary main_v7660 main_cst_764 main_v7661 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_765 (constantI S_ 32 382#32),
    unary main_c_765 main_v7662 (broadcastInDim S1 ![] bcast_S_S1 : (⟨S_, .i32⟩ : BufTy).Contents (Elt F) → (⟨S1, .i32⟩ : BufTy).Contents (Elt F)),
    ternary main_v7643 main_v7662 main_v7661 main_v7663 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps382_ok : (stepOps382 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step382_val (V : Valuation τ sig (Elt Ideal)) :
    after (stepOps382 (F := Ideal)) V (no_index (Proc.devRef .tc main_v7655)) = stepH 382 (by decide) (V (Proc.devRef .tc main_arg0)) (V (Proc.devRef .tc main_v3)) (V (Proc.devRef .tc main_arg2)) (V (Proc.devRef .tc main_v7635))
    ∧ after (stepOps382 (F := Ideal)) V (no_index (Proc.devRef .tc main_v7663)) = stepY 382 (by decide) (V (Proc.devRef .tc main_arg3)) (stepH 382 (by decide) (V (Proc.devRef .tc main_arg0)) (V (Proc.devRef .tc main_v3)) (V (Proc.devRef .tc main_arg2)) (V (Proc.devRef .tc main_v7635))) (V (Proc.devRef .tc main_v7643)) := by
  simp only [stepOps382]
  after_results_simp
  first | exact ⟨rfl, rfl⟩ | fail "value"
/-- Step 383 of the loop: operations 8433 … 8454 of the program. -/
abbrev stepOps383 : List (HloOp τ sig (Elt F)) :=
  [ unary main_v3 main_v7664 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7655 main_v7664 main_v7665 (mulf : (⟨S4x256x16, .f32⟩ : BufTy).Contents (Elt F) → (⟨S4x256x16, .f32⟩ : BufTy).Contents (Elt F) → (⟨S4x256x16, .f32⟩ : BufTy).Contents (Elt F)),
    unary main_arg0 main_v7666 ((extractStridedSlice S4x1x256 ![0, 383, 0] · slices_S4x512x256_S4x1x256_0_383_0) : (⟨S4x512x256, .f32⟩ : BufTy).Contents (Elt F) → (⟨S4x1x256, .f32⟩ : BufTy).Contents (Elt F)),
    reshape main_v7666 main_v7667 rfl shapeCasts_S4x1x256_S4x256,
    unary main_v7667 main_v7668 (broadcastInDim S4x256x1 ![0, 1] bcast_S4x256_S4x256x1_0_1 : (⟨S4x256, .f32⟩ : BufTy).Contents (Elt F) → (⟨S4x256x1, .f32⟩ : BufTy).Contents (Elt F)),
    unary main_arg2 main_v7669 ((extractStridedSlice S4x1x16 ![0, 383, 0] · slices_S4x512x16_S4x1x16_0_383_0) : (⟨S4x512x16, .f32⟩ : BufTy).Contents (Elt F) → (⟨S4x1x16, .f32⟩ : BufTy).Contents (Elt F)),
    reshape main_v7669 main_v7670 rfl shapeCasts_S4x1x16_S4x16,
    unary main_v7670 main_v7671 (broadcastInDim S4x1x16 ![0, 2] bcast_S4x16_S4x1x16_0_2 : (⟨S4x16, .f32⟩ : BufTy).Contents (Elt F) → (⟨S4x1x16, .f32⟩ : BufTy).Contents (Elt F)),
    unary main_v7668 main_v7672 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7671 main_v7673 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7672 main_v7673 main_v7674 (mulf : (⟨S4x256x16, .f32⟩ : BufTy).Contents (Elt F) → (⟨S4x256x16, .f32⟩ : BufTy).Contents (Elt F) → (⟨S4x256x16, .f32⟩ : BufTy).Contents (Elt F)),
    binary main_v7665 main_v7674 main_v7675 (addf : (⟨S4x256x16, .f32⟩ : BufTy).Contents (Elt F) → (⟨S4x256x16, .f32⟩ : BufTy).Contents (Elt F) → (⟨S4x256x16, .f32⟩ : BufTy).Contents (Elt F)),
    unary main_arg3 main_v7676 ((extractStridedSlice S4x1x16 ![0, 383, 0] · slices_S4x512x16_S4x1x16_0_383_0) : (⟨S4x512x16, .f32⟩ : BufTy).Contents (Elt F) → (⟨S4x1x16, .f32⟩ : BufTy).Contents (Elt F)),
    reshape main_v7676 main_v7677 rfl shapeCasts_S4x1x16_S4x16,
    unary main_v7677 main_v7678 (broadcastInDim S4x1x16 ![0, 2] bcast_S4x16_S4x1x16_0_2 : (⟨S4x16, .f32⟩ : BufTy).Contents (Elt F) → (⟨S4x1x16, .f32⟩ : BufTy).Contents (Elt F)),
    unary main_v7678 main_v7679 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7675 main_v7679 main_v7680 (mulf : (⟨S4x256x16, .f32⟩ : BufTy).Contents (Elt F) → (⟨S4x256x16, .f32⟩ : BufTy).Contents (Elt F) → (⟨S4x256x16, .f32⟩ : BufTy).Contents (Elt F)),
    nullary main_cst_766 (constant S_ .f32 0x00000000#32),
    binary main_v7680 main_cst_766 main_v7681 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_767 (constantI S_ 32 383#32),
    unary main_c_767 main_v7682 (broadcastInDim S1 ![] bcast_S_S1 : (⟨S_, .i32⟩ : BufTy).Contents (Elt F) → (⟨S1, .i32⟩ : BufTy).Contents (Elt F)),
    ternary main_v7663 main_v7682 main_v7681 main_v7683 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps383_ok : (stepOps383 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step383_val (V : Valuation τ sig (Elt Ideal)) :
    after (stepOps383 (F := Ideal)) V (no_index (Proc.devRef .tc main_v7675)) = stepH 383 (by decide) (V (Proc.devRef .tc main_arg0)) (V (Proc.devRef .tc main_v3)) (V (Proc.devRef .tc main_arg2)) (V (Proc.devRef .tc main_v7655))
    ∧ after (stepOps383 (F := Ideal)) V (no_index (Proc.devRef .tc main_v7683)) = stepY 383 (by decide) (V (Proc.devRef .tc main_arg3)) (stepH 383 (by decide) (V (Proc.devRef .tc main_arg0)) (V (Proc.devRef .tc main_v3)) (V (Proc.devRef .tc main_arg2)) (V (Proc.devRef .tc main_v7655))) (V (Proc.devRef .tc main_v7663)) := by
  simp only [stepOps383]
  after_results_simp
  first | exact ⟨rfl, rfl⟩ | fail "value"

end Cert.ReferenceIdeal.RefRun

end
-- ==== Proof.RefTableStep24.lean ====
/-
  Steps 384 … 399 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 384 of the loop: operations 8455 … 8476 of the program. -/
abbrev stepOps384 : List (HloOp τ sig (Elt F)) :=
  [ unary main_v3 main_v7684 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7675 main_v7684 main_v7685 (mulf : (⟨S4x256x16, .f32⟩ : BufTy).Contents (Elt F) → (⟨S4x256x16, .f32⟩ : BufTy).Contents (Elt F) → (⟨S4x256x16, .f32⟩ : BufTy).Contents (Elt F)),
    unary main_arg0 main_v7686 ((extractStridedSlice S4x1x256 ![0, 384, 0] · slices_S4x512x256_S4x1x256_0_384_0) : (⟨S4x512x256, .f32⟩ : BufTy).Contents (Elt F) → (⟨S4x1x256, .f32⟩ : BufTy).Contents (Elt F)),
    reshape main_v7686 main_v7687 rfl shapeCasts_S4x1x256_S4x256,
    unary main_v7687 main_v7688 (broadcastInDim S4x256x1 ![0, 1] bcast_S4x256_S4x256x1_0_1 : (⟨S4x256, .f32⟩ : BufTy).Contents (Elt F) → (⟨S4x256x1, .f32⟩ : BufTy).Contents (Elt F)),
    unary main_arg2 main_v7689 ((extractStridedSlice S4x1x16 ![0, 384, 0] · slices_S4x512x16_S4x1x16_0_384_0) : (⟨S4x512x16, .f32⟩ : BufTy).Contents (Elt F) → (⟨S4x1x16, .f32⟩ : BufTy).Contents (Elt F)),
    reshape main_v7689 main_v7690 rfl shapeCasts_S4x1x16_S4x16,
    unary main_v7690 main_v7691 (broadcastInDim S4x1x16 ![0, 2] bcast_S4x16_S4x1x16_0_2 : (⟨S4x16, .f32⟩ : BufTy).Contents (Elt F) → (⟨S4x1x16, .f32⟩ : BufTy).Contents (Elt F)),
    unary main_v7688 main_v7692 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7691 main_v7693 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7692 main_v7693 main_v7694 (mulf : (⟨S4x256x16, .f32⟩ : BufTy).Contents (Elt F) → (⟨S4x256x16, .f32⟩ : BufTy).Contents (Elt F) → (⟨S4x256x16, .f32⟩ : BufTy).Contents (Elt F)),
    binary main_v7685 main_v7694 main_v7695 (addf : (⟨S4x256x16, .f32⟩ : BufTy).Contents (Elt F) → (⟨S4x256x16, .f32⟩ : BufTy).Contents (Elt F) → (⟨S4x256x16, .f32⟩ : BufTy).Contents (Elt F)),
    unary main_arg3 main_v7696 ((extractStridedSlice S4x1x16 ![0, 384, 0] · slices_S4x512x16_S4x1x16_0_384_0) : (⟨S4x512x16, .f32⟩ : BufTy).Contents (Elt F) → (⟨S4x1x16, .f32⟩ : BufTy).Contents (Elt F)),
    reshape main_v7696 main_v7697 rfl shapeCasts_S4x1x16_S4x16,
    unary main_v7697 main_v7698 (broadcastInDim S4x1x16 ![0, 2] bcast_S4x16_S4x1x16_0_2 : (⟨S4x16, .f32⟩ : BufTy).Contents (Elt F) → (⟨S4x1x16, .f32⟩ : BufTy).Contents (Elt F)),
    unary main_v7698 main_v7699 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7695 main_v7699 main_v7700 (mulf : (⟨S4x256x16, .f32⟩ : BufTy).Contents (Elt F) → (⟨S4x256x16, .f32⟩ : BufTy).Contents (Elt F) → (⟨S4x256x16, .f32⟩ : BufTy).Contents (Elt F)),
    nullary main_cst_768 (constant S_ .f32 0x00000000#32),
    binary main_v7700 main_cst_768 main_v7701 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_769 (constantI S_ 32 384#32),
    unary main_c_769 main_v7702 (broadcastInDim S1 ![] bcast_S_S1 : (⟨S_, .i32⟩ : BufTy).Contents (Elt F) → (⟨S1, .i32⟩ : BufTy).Contents (Elt F)),
    ternary main_v7683 main_v7702 main_v7701 main_v7703 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps384_ok : (stepOps384 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step384_val (V : Valuation τ sig (Elt Ideal)) :
    after (stepOps384 (F := Ideal)) V (no_index (Proc.devRef .tc main_v7695)) = stepH 384 (by decide) (V (Proc.devRef .tc main_arg0)) (V (Proc.devRef .tc main_v3)) (V (Proc.devRef .tc main_arg2)) (V (Proc.devRef .tc main_v7675))
    ∧ after (stepOps384 (F := Ideal)) V (no_index (Proc.devRef .tc main_v7703)) = stepY 384 (by decide) (V (Proc.devRef .tc main_arg3)) (stepH 384 (by decide) (V (Proc.devRef .tc main_arg0)) (V (Proc.devRef .tc main_v3)) (V (Proc.devRef .tc main_arg2)) (V (Proc.devRef .tc main_v7675))) (V (Proc.devRef .tc main_v7683)) := by
  simp only [stepOps384]
  after_results_simp
  first | exact ⟨rfl, rfl⟩ | fail "value"
/-- Step 385 of the loop: operations 8477 … 8498 of the program. -/
abbrev stepOps385 : List (HloOp τ sig (Elt F)) :=
  [ unary main_v3 main_v7704 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7695 main_v7704 main_v7705 (mulf : (⟨S4x256x16, .f32⟩ : BufTy).Contents (Elt F) → (⟨S4x256x16, .f32⟩ : BufTy).Contents (Elt F) → (⟨S4x256x16, .f32⟩ : BufTy).Contents (Elt F)),
    unary main_arg0 main_v7706 ((extractStridedSlice S4x1x256 ![0, 385, 0] · slices_S4x512x256_S4x1x256_0_385_0) : (⟨S4x512x256, .f32⟩ : BufTy).Contents (Elt F) → (⟨S4x1x256, .f32⟩ : BufTy).Contents (Elt F)),
    reshape main_v7706 main_v7707 rfl shapeCasts_S4x1x256_S4x256,
    unary main_v7707 main_v7708 (broadcastInDim S4x256x1 ![0, 1] bcast_S4x256_S4x256x1_0_1 : (⟨S4x256, .f32⟩ : BufTy).Contents (Elt F) → (⟨S4x256x1, .f32⟩ : BufTy).Contents (Elt F)),
    unary main_arg2 main_v7709 ((extractStridedSlice S4x1x16 ![0, 385, 0] · slices_S4x512x16_S4x1x16_0_385_0) : (⟨S4x512x16, .f32⟩ : BufTy).Contents (Elt F) → (⟨S4x1x16, .f32⟩ : BufTy).Contents (Elt F)),
    reshape main_v7709 main_v7710 rfl shapeCasts_S4x1x16_S4x16,
    unary main_v7710 main_v7711 (broadcastInDim S4x1x16 ![0, 2] bcast_S4x16_S4x1x16_0_2 : (⟨S4x16, .f32⟩ : BufTy).Contents (Elt F) → (⟨S4x1x16, .f32⟩ : BufTy).Contents (Elt F)),
    unary main_v7708 main_v7712 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7711 main_v7713 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7712 main_v7713 main_v7714 (mulf : (⟨S4x256x16, .f32⟩ : BufTy).Contents (Elt F) → (⟨S4x256x16, .f32⟩ : BufTy).Contents (Elt F) → (⟨S4x256x16, .f32⟩ : BufTy).Contents (Elt F)),
    binary main_v7705 main_v7714 main_v7715 (addf : (⟨S4x256x16, .f32⟩ : BufTy).Contents (Elt F) → (⟨S4x256x16, .f32⟩ : BufTy).Contents (Elt F) → (⟨S4x256x16, .f32⟩ : BufTy).Contents (Elt F)),
    unary main_arg3 main_v7716 ((extractStridedSlice S4x1x16 ![0, 385, 0] · slices_S4x512x16_S4x1x16_0_385_0) : (⟨S4x512x16, .f32⟩ : BufTy).Contents (Elt F) → (⟨S4x1x16, .f32⟩ : BufTy).Contents (Elt F)),
    reshape main_v7716 main_v7717 rfl shapeCasts_S4x1x16_S4x16,
    unary main_v7717 main_v7718 (broadcastInDim S4x1x16 ![0, 2] bcast_S4x16_S4x1x16_0_2 : (⟨S4x16, .f32⟩ : BufTy).Contents (Elt F) → (⟨S4x1x16, .f32⟩ : BufTy).Contents (Elt F)),
    unary main_v7718 main_v7719 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7715 main_v7719 main_v7720 (mulf : (⟨S4x256x16, .f32⟩ : BufTy).Contents (Elt F) → (⟨S4x256x16, .f32⟩ : BufTy).Contents (Elt F) → (⟨S4x256x16, .f32⟩ : BufTy).Contents (Elt F)),
    nullary main_cst_770 (constant S_ .f32 0x00000000#32),
    binary main_v7720 main_cst_770 main_v7721 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_771 (constantI S_ 32 385#32),
    unary main_c_771 main_v7722 (broadcastInDim S1 ![] bcast_S_S1 : (⟨S_, .i32⟩ : BufTy).Contents (Elt F) → (⟨S1, .i32⟩ : BufTy).Contents (Elt F)),
    ternary main_v7703 main_v7722 main_v7721 main_v7723 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps385_ok : (stepOps385 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step385_val (V : Valuation τ sig (Elt Ideal)) :
    after (stepOps385 (F := Ideal)) V (no_index (Proc.devRef .tc main_v7715)) = stepH 385 (by decide) (V (Proc.devRef .tc main_arg0)) (V (Proc.devRef .tc main_v3)) (V (Proc.devRef .tc main_arg2)) (V (Proc.devRef .tc main_v7695))
    ∧ after (stepOps385 (F := Ideal)) V (no_index (Proc.devRef .tc main_v7723)) = stepY 385 (by decide) (V (Proc.devRef .tc main_arg3)) (stepH 385 (by decide) (V (Proc.devRef .tc main_arg0)) (V (Proc.devRef .tc main_v3)) (V (Proc.devRef .tc main_arg2)) (V (Proc.devRef .tc main_v7695))) (V (Proc.devRef .tc main_v7703)) := by
  simp only [stepOps385]
  after_results_simp
  first | exact ⟨rfl, rfl⟩ | fail "value"
/-- Step 386 of the loop: operations 8499 … 8520 of the program. -/
abbrev stepOps386 : List (HloOp τ sig (Elt F)) :=
  [ unary main_v3 main_v7724 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7715 main_v7724 main_v7725 (mulf : (⟨S4x256x16, .f32⟩ : BufTy).Contents (Elt F) → (⟨S4x256x16, .f32⟩ : BufTy).Contents (Elt F) → (⟨S4x256x16, .f32⟩ : BufTy).Contents (Elt F)),
    unary main_arg0 main_v7726 ((extractStridedSlice S4x1x256 ![0, 386, 0] · slices_S4x512x256_S4x1x256_0_386_0) : (⟨S4x512x256, .f32⟩ : BufTy).Contents (Elt F) → (⟨S4x1x256, .f32⟩ : BufTy).Contents (Elt F)),
    reshape main_v7726 main_v7727 rfl shapeCasts_S4x1x256_S4x256,
    unary main_v7727 main_v7728 (broadcastInDim S4x256x1 ![0, 1] bcast_S4x256_S4x256x1_0_1 : (⟨S4x256, .f32⟩ : BufTy).Contents (Elt F) → (⟨S4x256x1, .f32⟩ : BufTy).Contents (Elt F)),
    unary main_arg2 main_v7729 ((extractStridedSlice S4x1x16 ![0, 386, 0] · slices_S4x512x16_S4x1x16_0_386_0) : (⟨S4x512x16, .f32⟩ : BufTy).Contents (Elt F) → (⟨S4x1x16, .f32⟩ : BufTy).Contents (Elt F)),
    reshape main_v7729 main_v7730 rfl shapeCasts_S4x1x16_S4x16,
    unary main_v7730 main_v7731 (broadcastInDim S4x1x16 ![0, 2] bcast_S4x16_S4x1x16_0_2 : (⟨S4x16, .f32⟩ : BufTy).Contents (Elt F) → (⟨S4x1x16, .f32⟩ : BufTy).Contents (Elt F)),
    unary main_v7728 main_v7732 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7731 main_v7733 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7732 main_v7733 main_v7734 (mulf : (⟨S4x256x16, .f32⟩ : BufTy).Contents (Elt F) → (⟨S4x256x16, .f32⟩ : BufTy).Contents (Elt F) → (⟨S4x256x16, .f32⟩ : BufTy).Contents (Elt F)),
    binary main_v7725 main_v7734 main_v7735 (addf : (⟨S4x256x16, .f32⟩ : BufTy).Contents (Elt F) → (⟨S4x256x16, .f32⟩ : BufTy).Contents (Elt F) → (⟨S4x256x16, .f32⟩ : BufTy).Contents (Elt F)),
    unary main_arg3 main_v7736 ((extractStridedSlice S4x1x16 ![0, 386, 0] · slices_S4x512x16_S4x1x16_0_386_0) : (⟨S4x512x16, .f32⟩ : BufTy).Contents (Elt F) → (⟨S4x1x16, .f32⟩ : BufTy).Contents (Elt F)),
    reshape main_v7736 main_v7737 rfl shapeCasts_S4x1x16_S4x16,
    unary main_v7737 main_v7738 (broadcastInDim S4x1x16 ![0, 2] bcast_S4x16_S4x1x16_0_2 : (⟨S4x16, .f32⟩ : BufTy).Contents (Elt F) → (⟨S4x1x16, .f32⟩ : BufTy).Contents (Elt F)),
    unary main_v7738 main_v7739 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7735 main_v7739 main_v7740 (mulf : (⟨S4x256x16, .f32⟩ : BufTy).Contents (Elt F) → (⟨S4x256x16, .f32⟩ : BufTy).Contents (Elt F) → (⟨S4x256x16, .f32⟩ : BufTy).Contents (Elt F)),
    nullary main_cst_772 (constant S_ .f32 0x00000000#32),
    binary main_v7740 main_cst_772 main_v7741 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_773 (constantI S_ 32 386#32),
    unary main_c_773 main_v7742 (broadcastInDim S1 ![] bcast_S_S1 : (⟨S_, .i32⟩ : BufTy).Contents (Elt F) → (⟨S1, .i32⟩ : BufTy).Contents (Elt F)),
    ternary main_v7723 main_v7742 main_v7741 main_v7743 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps386_ok : (stepOps386 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step386_val (V : Valuation τ sig (Elt Ideal)) :
    after (stepOps386 (F := Ideal)) V (no_index (Proc.devRef .tc main_v7735)) = stepH 386 (by decide) (V (Proc.devRef .tc main_arg0)) (V (Proc.devRef .tc main_v3)) (V (Proc.devRef .tc main_arg2)) (V (Proc.devRef .tc main_v7715))
    ∧ after (stepOps386 (F := Ideal)) V (no_index (Proc.devRef .tc main_v7743)) = stepY 386 (by decide) (V (Proc.devRef .tc main_arg3)) (stepH 386 (by decide) (V (Proc.devRef .tc main_arg0)) (V (Proc.devRef .tc main_v3)) (V (Proc.devRef .tc main_arg2)) (V (Proc.devRef .tc main_v7715))) (V (Proc.devRef .tc main_v7723)) := by
  simp only [stepOps386]
  after_results_simp
  first | exact ⟨rfl, rfl⟩ | fail "value"
/-- Step 387 of the loop: operations 8521 … 8542 of the program. -/
abbrev stepOps387 : List (HloOp τ sig (Elt F)) :=
  [ unary main_v3 main_v7744 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7735 main_v7744 main_v7745 (mulf : (⟨S4x256x16, .f32⟩ : BufTy).Contents (Elt F) → (⟨S4x256x16, .f32⟩ : BufTy).Contents (Elt F) → (⟨S4x256x16, .f32⟩ : BufTy).Contents (Elt F)),
    unary main_arg0 main_v7746 ((extractStridedSlice S4x1x256 ![0, 387, 0] · slices_S4x512x256_S4x1x256_0_387_0) : (⟨S4x512x256, .f32⟩ : BufTy).Contents (Elt F) → (⟨S4x1x256, .f32⟩ : BufTy).Contents (Elt F)),
    reshape main_v7746 main_v7747 rfl shapeCasts_S4x1x256_S4x256,
    unary main_v7747 main_v7748 (broadcastInDim S4x256x1 ![0, 1] bcast_S4x256_S4x256x1_0_1 : (⟨S4x256, .f32⟩ : BufTy).Contents (Elt F) → (⟨S4x256x1, .f32⟩ : BufTy).Contents (Elt F)),
    unary main_arg2 main_v7749 ((extractStridedSlice S4x1x16 ![0, 387, 0] · slices_S4x512x16_S4x1x16_0_387_0) : (⟨S4x512x16, .f32⟩ : BufTy).Contents (Elt F) → (⟨S4x1x16, .f32⟩ : BufTy).Contents (Elt F)),
    reshape main_v7749 main_v7750 rfl shapeCasts_S4x1x16_S4x16,
    unary main_v7750 main_v7751 (broadcastInDim S4x1x16 ![0, 2] bcast_S4x16_S4x1x16_0_2 : (⟨S4x16, .f32⟩ : BufTy).Contents (Elt F) → (⟨S4x1x16, .f32⟩ : BufTy).Contents (Elt F)),
    unary main_v7748 main_v7752 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7751 main_v7753 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7752 main_v7753 main_v7754 (mulf : (⟨S4x256x16, .f32⟩ : BufTy).Contents (Elt F) → (⟨S4x256x16, .f32⟩ : BufTy).Contents (Elt F) → (⟨S4x256x16, .f32⟩ : BufTy).Contents (Elt F)),
    binary main_v7745 main_v7754 main_v7755 (addf : (⟨S4x256x16, .f32⟩ : BufTy).Contents (Elt F) → (⟨S4x256x16, .f32⟩ : BufTy).Contents (Elt F) → (⟨S4x256x16, .f32⟩ : BufTy).Contents (Elt F)),
    unary main_arg3 main_v7756 ((extractStridedSlice S4x1x16 ![0, 387, 0] · slices_S4x512x16_S4x1x16_0_387_0) : (⟨S4x512x16, .f32⟩ : BufTy).Contents (Elt F) → (⟨S4x1x16, .f32⟩ : BufTy).Contents (Elt F)),
    reshape main_v7756 main_v7757 rfl shapeCasts_S4x1x16_S4x16,
    unary main_v7757 main_v7758 (broadcastInDim S4x1x16 ![0, 2] bcast_S4x16_S4x1x16_0_2 : (⟨S4x16, .f32⟩ : BufTy).Contents (Elt F) → (⟨S4x1x16, .f32⟩ : BufTy).Contents (Elt F)),
    unary main_v7758 main_v7759 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7755 main_v7759 main_v7760 (mulf : (⟨S4x256x16, .f32⟩ : BufTy).Contents (Elt F) → (⟨S4x256x16, .f32⟩ : BufTy).Contents (Elt F) → (⟨S4x256x16, .f32⟩ : BufTy).Contents (Elt F)),
    nullary main_cst_774 (constant S_ .f32 0x00000000#32),
    binary main_v7760 main_cst_774 main_v7761 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_775 (constantI S_ 32 387#32),
    unary main_c_775 main_v7762 (broadcastInDim S1 ![] bcast_S_S1 : (⟨S_, .i32⟩ : BufTy).Contents (Elt F) → (⟨S1, .i32⟩ : BufTy).Contents (Elt F)),
    ternary main_v7743 main_v7762 main_v7761 main_v7763 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps387_ok : (stepOps387 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step387_val (V : Valuation τ sig (Elt Ideal)) :
    after (stepOps387 (F := Ideal)) V (no_index (Proc.devRef .tc main_v7755)) = stepH 387 (by decide) (V (Proc.devRef .tc main_arg0)) (V (Proc.devRef .tc main_v3)) (V (Proc.devRef .tc main_arg2)) (V (Proc.devRef .tc main_v7735))
    ∧ after (stepOps387 (F := Ideal)) V (no_index (Proc.devRef .tc main_v7763)) = stepY 387 (by decide) (V (Proc.devRef .tc main_arg3)) (stepH 387 (by decide) (V (Proc.devRef .tc main_arg0)) (V (Proc.devRef .tc main_v3)) (V (Proc.devRef .tc main_arg2)) (V (Proc.devRef .tc main_v7735))) (V (Proc.devRef .tc main_v7743)) := by
  simp only [stepOps387]
  after_results_simp
  first | exact ⟨rfl, rfl⟩ | fail "value"
/-- Step 388 of the loop: operations 8543 … 8564 of the program. -/
abbrev stepOps388 : List (HloOp τ sig (Elt F)) :=
  [ unary main_v3 main_v7764 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7755 main_v7764 main_v7765 (mulf : (⟨S4x256x16, .f32⟩ : BufTy).Contents (Elt F) → (⟨S4x256x16, .f32⟩ : BufTy).Contents (Elt F) → (⟨S4x256x16, .f32⟩ : BufTy).Contents (Elt F)),
    unary main_arg0 main_v7766 ((extractStridedSlice S4x1x256 ![0, 388, 0] · slices_S4x512x256_S4x1x256_0_388_0) : (⟨S4x512x256, .f32⟩ : BufTy).Contents (Elt F) → (⟨S4x1x256, .f32⟩ : BufTy).Contents (Elt F)),
    reshape main_v7766 main_v7767 rfl shapeCasts_S4x1x256_S4x256,
    unary main_v7767 main_v7768 (broadcastInDim S4x256x1 ![0, 1] bcast_S4x256_S4x256x1_0_1 : (⟨S4x256, .f32⟩ : BufTy).Contents (Elt F) → (⟨S4x256x1, .f32⟩ : BufTy).Contents (Elt F)),
    unary main_arg2 main_v7769 ((extractStridedSlice S4x1x16 ![0, 388, 0] · slices_S4x512x16_S4x1x16_0_388_0) : (⟨S4x512x16, .f32⟩ : BufTy).Contents (Elt F) → (⟨S4x1x16, .f32⟩ : BufTy).Contents (Elt F)),
    reshape main_v7769 main_v7770 rfl shapeCasts_S4x1x16_S4x16,
    unary main_v7770 main_v7771 (broadcastInDim S4x1x16 ![0, 2] bcast_S4x16_S4x1x16_0_2 : (⟨S4x16, .f32⟩ : BufTy).Contents (Elt F) → (⟨S4x1x16, .f32⟩ : BufTy).Contents (Elt F)),
    unary main_v7768 main_v7772 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7771 main_v7773 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7772 main_v7773 main_v7774 (mulf : (⟨S4x256x16, .f32⟩ : BufTy).Contents (Elt F) → (⟨S4x256x16, .f32⟩ : BufTy).Contents (Elt F) → (⟨S4x256x16, .f32⟩ : BufTy).Contents (Elt F)),
    binary main_v7765 main_v7774 main_v7775 (addf : (⟨S4x256x16, .f32⟩ : BufTy).Contents (Elt F) → (⟨S4x256x16, .f32⟩ : BufTy).Contents (Elt F) → (⟨S4x256x16, .f32⟩ : BufTy).Contents (Elt F)),
    unary main_arg3 main_v7776 ((extractStridedSlice S4x1x16 ![0, 388, 0] · slices_S4x512x16_S4x1x16_0_388_0) : (⟨S4x512x16, .f32⟩ : BufTy).Contents (Elt F) → (⟨S4x1x16, .f32⟩ : BufTy).Contents (Elt F)),
    reshape main_v7776 main_v7777 rfl shapeCasts_S4x1x16_S4x16,
    unary main_v7777 main_v7778 (broadcastInDim S4x1x16 ![0, 2] bcast_S4x16_S4x1x16_0_2 : (⟨S4x16, .f32⟩ : BufTy).Contents (Elt F) → (⟨S4x1x16, .f32⟩ : BufTy).Contents (Elt F)),
    unary main_v7778 main_v7779 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7775 main_v7779 main_v7780 (mulf : (⟨S4x256x16, .f32⟩ : BufTy).Contents (Elt F) → (⟨S4x256x16, .f32⟩ : BufTy).Contents (Elt F) → (⟨S4x256x16, .f32⟩ : BufTy).Contents (Elt F)),
    nullary main_cst_776 (constant S_ .f32 0x00000000#32),
    binary main_v7780 main_cst_776 main_v7781 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_777 (constantI S_ 32 388#32),
    unary main_c_777 main_v7782 (broadcastInDim S1 ![] bcast_S_S1 : (⟨S_, .i32⟩ : BufTy).Contents (Elt F) → (⟨S1, .i32⟩ : BufTy).Contents (Elt F)),
    ternary main_v7763 main_v7782 main_v7781 main_v7783 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps388_ok : (stepOps388 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step388_val (V : Valuation τ sig (Elt Ideal)) :
    after (stepOps388 (F := Ideal)) V (no_index (Proc.devRef .tc main_v7775)) = stepH 388 (by decide) (V (Proc.devRef .tc main_arg0)) (V (Proc.devRef .tc main_v3)) (V (Proc.devRef .tc main_arg2)) (V (Proc.devRef .tc main_v7755))
    ∧ after (stepOps388 (F := Ideal)) V (no_index (Proc.devRef .tc main_v7783)) = stepY 388 (by decide) (V (Proc.devRef .tc main_arg3)) (stepH 388 (by decide) (V (Proc.devRef .tc main_arg0)) (V (Proc.devRef .tc main_v3)) (V (Proc.devRef .tc main_arg2)) (V (Proc.devRef .tc main_v7755))) (V (Proc.devRef .tc main_v7763)) := by
  simp only [stepOps388]
  after_results_simp
  first | exact ⟨rfl, rfl⟩ | fail "value"
/-- Step 389 of the loop: operations 8565 … 8586 of the program. -/
abbrev stepOps389 : List (HloOp τ sig (Elt F)) :=
  [ unary main_v3 main_v7784 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7775 main_v7784 main_v7785 (mulf : (⟨S4x256x16, .f32⟩ : BufTy).Contents (Elt F) → (⟨S4x256x16, .f32⟩ : BufTy).Contents (Elt F) → (⟨S4x256x16, .f32⟩ : BufTy).Contents (Elt F)),
    unary main_arg0 main_v7786 ((extractStridedSlice S4x1x256 ![0, 389, 0] · slices_S4x512x256_S4x1x256_0_389_0) : (⟨S4x512x256, .f32⟩ : BufTy).Contents (Elt F) → (⟨S4x1x256, .f32⟩ : BufTy).Contents (Elt F)),
    reshape main_v7786 main_v7787 rfl shapeCasts_S4x1x256_S4x256,
    unary main_v7787 main_v7788 (broadcastInDim S4x256x1 ![0, 1] bcast_S4x256_S4x256x1_0_1 : (⟨S4x256, .f32⟩ : BufTy).Contents (Elt F) → (⟨S4x256x1, .f32⟩ : BufTy).Contents (Elt F)),
    unary main_arg2 main_v7789 ((extractStridedSlice S4x1x16 ![0, 389, 0] · slices_S4x512x16_S4x1x16_0_389_0) : (⟨S4x512x16, .f32⟩ : BufTy).Contents (Elt F) → (⟨S4x1x16, .f32⟩ : BufTy).Contents (Elt F)),
    reshape main_v7789 main_v7790 rfl shapeCasts_S4x1x16_S4x16,
    unary main_v7790 main_v7791 (broadcastInDim S4x1x16 ![0, 2] bcast_S4x16_S4x1x16_0_2 : (⟨S4x16, .f32⟩ : BufTy).Contents (Elt F) → (⟨S4x1x16, .f32⟩ : BufTy).Contents (Elt F)),
    unary main_v7788 main_v7792 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7791 main_v7793 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7792 main_v7793 main_v7794 (mulf : (⟨S4x256x16, .f32⟩ : BufTy).Contents (Elt F) → (⟨S4x256x16, .f32⟩ : BufTy).Contents (Elt F) → (⟨S4x256x16, .f32⟩ : BufTy).Contents (Elt F)),
    binary main_v7785 main_v7794 main_v7795 (addf : (⟨S4x256x16, .f32⟩ : BufTy).Contents (Elt F) → (⟨S4x256x16, .f32⟩ : BufTy).Contents (Elt F) → (⟨S4x256x16, .f32⟩ : BufTy).Contents (Elt F)),
    unary main_arg3 main_v7796 ((extractStridedSlice S4x1x16 ![0, 389, 0] · slices_S4x512x16_S4x1x16_0_389_0) : (⟨S4x512x16, .f32⟩ : BufTy).Contents (Elt F) → (⟨S4x1x16, .f32⟩ : BufTy).Contents (Elt F)),
    reshape main_v7796 main_v7797 rfl shapeCasts_S4x1x16_S4x16,
    unary main_v7797 main_v7798 (broadcastInDim S4x1x16 ![0, 2] bcast_S4x16_S4x1x16_0_2 : (⟨S4x16, .f32⟩ : BufTy).Contents (Elt F) → (⟨S4x1x16, .f32⟩ : BufTy).Contents (Elt F)),
    unary main_v7798 main_v7799 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7795 main_v7799 main_v7800 (mulf : (⟨S4x256x16, .f32⟩ : BufTy).Contents (Elt F) → (⟨S4x256x16, .f32⟩ : BufTy).Contents (Elt F) → (⟨S4x256x16, .f32⟩ : BufTy).Contents (Elt F)),
    nullary main_cst_778 (constant S_ .f32 0x00000000#32),
    binary main_v7800 main_cst_778 main_v7801 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_779 (constantI S_ 32 389#32),
    unary main_c_779 main_v7802 (broadcastInDim S1 ![] bcast_S_S1 : (⟨S_, .i32⟩ : BufTy).Contents (Elt F) → (⟨S1, .i32⟩ : BufTy).Contents (Elt F)),
    ternary main_v7783 main_v7802 main_v7801 main_v7803 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps389_ok : (stepOps389 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step389_val (V : Valuation τ sig (Elt Ideal)) :
    after (stepOps389 (F := Ideal)) V (no_index (Proc.devRef .tc main_v7795)) = stepH 389 (by decide) (V (Proc.devRef .tc main_arg0)) (V (Proc.devRef .tc main_v3)) (V (Proc.devRef .tc main_arg2)) (V (Proc.devRef .tc main_v7775))
    ∧ after (stepOps389 (F := Ideal)) V (no_index (Proc.devRef .tc main_v7803)) = stepY 389 (by decide) (V (Proc.devRef .tc main_arg3)) (stepH 389 (by decide) (V (Proc.devRef .tc main_arg0)) (V (Proc.devRef .tc main_v3)) (V (Proc.devRef .tc main_arg2)) (V (Proc.devRef .tc main_v7775))) (V (Proc.devRef .tc main_v7783)) := by
  simp only [stepOps389]
  after_results_simp
  first | exact ⟨rfl, rfl⟩ | fail "value"
/-- Step 390 of the loop: operations 8587 … 8608 of the program. -/
abbrev stepOps390 : List (HloOp τ sig (Elt F)) :=
  [ unary main_v3 main_v7804 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7795 main_v7804 main_v7805 (mulf : (⟨S4x256x16, .f32⟩ : BufTy).Contents (Elt F) → (⟨S4x256x16, .f32⟩ : BufTy).Contents (Elt F) → (⟨S4x256x16, .f32⟩ : BufTy).Contents (Elt F)),
    unary main_arg0 main_v7806 ((extractStridedSlice S4x1x256 ![0, 390, 0] · slices_S4x512x256_S4x1x256_0_390_0) : (⟨S4x512x256, .f32⟩ : BufTy).Contents (Elt F) → (⟨S4x1x256, .f32⟩ : BufTy).Contents (Elt F)),
    reshape main_v7806 main_v7807 rfl shapeCasts_S4x1x256_S4x256,
    unary main_v7807 main_v7808 (broadcastInDim S4x256x1 ![0, 1] bcast_S4x256_S4x256x1_0_1 : (⟨S4x256, .f32⟩ : BufTy).Contents (Elt F) → (⟨S4x256x1, .f32⟩ : BufTy).Contents (Elt F)),
    unary main_arg2 main_v7809 ((extractStridedSlice S4x1x16 ![0, 390, 0] · slices_S4x512x16_S4x1x16_0_390_0) : (⟨S4x512x16, .f32⟩ : BufTy).Contents (Elt F) → (⟨S4x1x16, .f32⟩ : BufTy).Contents (Elt F)),
    reshape main_v7809 main_v7810 rfl shapeCasts_S4x1x16_S4x16,
    unary main_v7810 main_v7811 (broadcastInDim S4x1x16 ![0, 2] bcast_S4x16_S4x1x16_0_2 : (⟨S4x16, .f32⟩ : BufTy).Contents (Elt F) → (⟨S4x1x16, .f32⟩ : BufTy).Contents (Elt F)),
    unary main_v7808 main_v7812 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7811 main_v7813 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7812 main_v7813 main_v7814 (mulf : (⟨S4x256x16, .f32⟩ : BufTy).Contents (Elt F) → (⟨S4x256x16, .f32⟩ : BufTy).Contents (Elt F) → (⟨S4x256x16, .f32⟩ : BufTy).Contents (Elt F)),
    binary main_v7805 main_v7814 main_v7815 (addf : (⟨S4x256x16, .f32⟩ : BufTy).Contents (Elt F) → (⟨S4x256x16, .f32⟩ : BufTy).Contents (Elt F) → (⟨S4x256x16, .f32⟩ : BufTy).Contents (Elt F)),
    unary main_arg3 main_v7816 ((extractStridedSlice S4x1x16 ![0, 390, 0] · slices_S4x512x16_S4x1x16_0_390_0) : (⟨S4x512x16, .f32⟩ : BufTy).Contents (Elt F) → (⟨S4x1x16, .f32⟩ : BufTy).Contents (Elt F)),
    reshape main_v7816 main_v7817 rfl shapeCasts_S4x1x16_S4x16,
    unary main_v7817 main_v7818 (broadcastInDim S4x1x16 ![0, 2] bcast_S4x16_S4x1x16_0_2 : (⟨S4x16, .f32⟩ : BufTy).Contents (Elt F) → (⟨S4x1x16, .f32⟩ : BufTy).Contents (Elt F)),
    unary main_v7818 main_v7819 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7815 main_v7819 main_v7820 (mulf : (⟨S4x256x16, .f32⟩ : BufTy).Contents (Elt F) → (⟨S4x256x16, .f32⟩ : BufTy).Contents (Elt F) → (⟨S4x256x16, .f32⟩ : BufTy).Contents (Elt F)),
    nullary main_cst_780 (constant S_ .f32 0x00000000#32),
    binary main_v7820 main_cst_780 main_v7821 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_781 (constantI S_ 32 390#32),
    unary main_c_781 main_v7822 (broadcastInDim S1 ![] bcast_S_S1 : (⟨S_, .i32⟩ : BufTy).Contents (Elt F) → (⟨S1, .i32⟩ : BufTy).Contents (Elt F)),
    ternary main_v7803 main_v7822 main_v7821 main_v7823 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps390_ok : (stepOps390 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step390_val (V : Valuation τ sig (Elt Ideal)) :
    after (stepOps390 (F := Ideal)) V (no_index (Proc.devRef .tc main_v7815)) = stepH 390 (by decide) (V (Proc.devRef .tc main_arg0)) (V (Proc.devRef .tc main_v3)) (V (Proc.devRef .tc main_arg2)) (V (Proc.devRef .tc main_v7795))
    ∧ after (stepOps390 (F := Ideal)) V (no_index (Proc.devRef .tc main_v7823)) = stepY 390 (by decide) (V (Proc.devRef .tc main_arg3)) (stepH 390 (by decide) (V (Proc.devRef .tc main_arg0)) (V (Proc.devRef .tc main_v3)) (V (Proc.devRef .tc main_arg2)) (V (Proc.devRef .tc main_v7795))) (V (Proc.devRef .tc main_v7803)) := by
  simp only [stepOps390]
  after_results_simp
  first | exact ⟨rfl, rfl⟩ | fail "value"
/-- Step 391 of the loop: operations 8609 … 8630 of the program. -/
abbrev stepOps391 : List (HloOp τ sig (Elt F)) :=
  [ unary main_v3 main_v7824 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7815 main_v7824 main_v7825 (mulf : (⟨S4x256x16, .f32⟩ : BufTy).Contents (Elt F) → (⟨S4x256x16, .f32⟩ : BufTy).Contents (Elt F) → (⟨S4x256x16, .f32⟩ : BufTy).Contents (Elt F)),
    unary main_arg0 main_v7826 ((extractStridedSlice S4x1x256 ![0, 391, 0] · slices_S4x512x256_S4x1x256_0_391_0) : (⟨S4x512x256, .f32⟩ : BufTy).Contents (Elt F) → (⟨S4x1x256, .f32⟩ : BufTy).Contents (Elt F)),
    reshape main_v7826 main_v7827 rfl shapeCasts_S4x1x256_S4x256,
    unary main_v7827 main_v7828 (broadcastInDim S4x256x1 ![0, 1] bcast_S4x256_S4x256x1_0_1 : (⟨S4x256, .f32⟩ : BufTy).Contents (Elt F) → (⟨S4x256x1, .f32⟩ : BufTy).Contents (Elt F)),
    unary main_arg2 main_v7829 ((extractStridedSlice S4x1x16 ![0, 391, 0] · slices_S4x512x16_S4x1x16_0_391_0) : (⟨S4x512x16, .f32⟩ : BufTy).Contents (Elt F) → (⟨S4x1x16, .f32⟩ : BufTy).Contents (Elt F)),
    reshape main_v7829 main_v7830 rfl shapeCasts_S4x1x16_S4x16,
    unary main_v7830 main_v7831 (broadcastInDim S4x1x16 ![0, 2] bcast_S4x16_S4x1x16_0_2 : (⟨S4x16, .f32⟩ : BufTy).Contents (Elt F) → (⟨S4x1x16, .f32⟩ : BufTy).Contents (Elt F)),
    unary main_v7828 main_v7832 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7831 main_v7833 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7832 main_v7833 main_v7834 (mulf : (⟨S4x256x16, .f32⟩ : BufTy).Contents (Elt F) → (⟨S4x256x16, .f32⟩ : BufTy).Contents (Elt F) → (⟨S4x256x16, .f32⟩ : BufTy).Contents (Elt F)),
    binary main_v7825 main_v7834 main_v7835 (addf : (⟨S4x256x16, .f32⟩ : BufTy).Contents (Elt F) → (⟨S4x256x16, .f32⟩ : BufTy).Contents (Elt F) → (⟨S4x256x16, .f32⟩ : BufTy).Contents (Elt F)),
    unary main_arg3 main_v7836 ((extractStridedSlice S4x1x16 ![0, 391, 0] · slices_S4x512x16_S4x1x16_0_391_0) : (⟨S4x512x16, .f32⟩ : BufTy).Contents (Elt F) → (⟨S4x1x16, .f32⟩ : BufTy).Contents (Elt F)),
    reshape main_v7836 main_v7837 rfl shapeCasts_S4x1x16_S4x16,
    unary main_v7837 main_v7838 (broadcastInDim S4x1x16 ![0, 2] bcast_S4x16_S4x1x16_0_2 : (⟨S4x16, .f32⟩ : BufTy).Contents (Elt F) → (⟨S4x1x16, .f32⟩ : BufTy).Contents (Elt F)),
    unary main_v7838 main_v7839 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7835 main_v7839 main_v7840 (mulf : (⟨S4x256x16, .f32⟩ : BufTy).Contents (Elt F) → (⟨S4x256x16, .f32⟩ : BufTy).Contents (Elt F) → (⟨S4x256x16, .f32⟩ : BufTy).Contents (Elt F)),
    nullary main_cst_782 (constant S_ .f32 0x00000000#32),
    binary main_v7840 main_cst_782 main_v7841 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_783 (constantI S_ 32 391#32),
    unary main_c_783 main_v7842 (broadcastInDim S1 ![] bcast_S_S1 : (⟨S_, .i32⟩ : BufTy).Contents (Elt F) → (⟨S1, .i32⟩ : BufTy).Contents (Elt F)),
    ternary main_v7823 main_v7842 main_v7841 main_v7843 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps391_ok : (stepOps391 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step391_val (V : Valuation τ sig (Elt Ideal)) :
    after (stepOps391 (F := Ideal)) V (no_index (Proc.devRef .tc main_v7835)) = stepH 391 (by decide) (V (Proc.devRef .tc main_arg0)) (V (Proc.devRef .tc main_v3)) (V (Proc.devRef .tc main_arg2)) (V (Proc.devRef .tc main_v7815))
    ∧ after (stepOps391 (F := Ideal)) V (no_index (Proc.devRef .tc main_v7843)) = stepY 391 (by decide) (V (Proc.devRef .tc main_arg3)) (stepH 391 (by decide) (V (Proc.devRef .tc main_arg0)) (V (Proc.devRef .tc main_v3)) (V (Proc.devRef .tc main_arg2)) (V (Proc.devRef .tc main_v7815))) (V (Proc.devRef .tc main_v7823)) := by
  simp only [stepOps391]
  after_results_simp
  first | exact ⟨rfl, rfl⟩ | fail "value"
/-- Step 392 of the loop: operations 8631 … 8652 of the program. -/
abbrev stepOps392 : List (HloOp τ sig (Elt F)) :=
  [ unary main_v3 main_v7844 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7835 main_v7844 main_v7845 (mulf : (⟨S4x256x16, .f32⟩ : BufTy).Contents (Elt F) → (⟨S4x256x16, .f32⟩ : BufTy).Contents (Elt F) → (⟨S4x256x16, .f32⟩ : BufTy).Contents (Elt F)),
    unary main_arg0 main_v7846 ((extractStridedSlice S4x1x256 ![0, 392, 0] · slices_S4x512x256_S4x1x256_0_392_0) : (⟨S4x512x256, .f32⟩ : BufTy).Contents (Elt F) → (⟨S4x1x256, .f32⟩ : BufTy).Contents (Elt F)),
    reshape main_v7846 main_v7847 rfl shapeCasts_S4x1x256_S4x256,
    unary main_v7847 main_v7848 (broadcastInDim S4x256x1 ![0, 1] bcast_S4x256_S4x256x1_0_1 : (⟨S4x256, .f32⟩ : BufTy).Contents (Elt F) → (⟨S4x256x1, .f32⟩ : BufTy).Contents (Elt F)),
    unary main_arg2 main_v7849 ((extractStridedSlice S4x1x16 ![0, 392, 0] · slices_S4x512x16_S4x1x16_0_392_0) : (⟨S4x512x16, .f32⟩ : BufTy).Contents (Elt F) → (⟨S4x1x16, .f32⟩ : BufTy).Contents (Elt F)),
    reshape main_v7849 main_v7850 rfl shapeCasts_S4x1x16_S4x16,
    unary main_v7850 main_v7851 (broadcastInDim S4x1x16 ![0, 2] bcast_S4x16_S4x1x16_0_2 : (⟨S4x16, .f32⟩ : BufTy).Contents (Elt F) → (⟨S4x1x16, .f32⟩ : BufTy).Contents (Elt F)),
    unary main_v7848 main_v7852 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7851 main_v7853 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7852 main_v7853 main_v7854 (mulf : (⟨S4x256x16, .f32⟩ : BufTy).Contents (Elt F) → (⟨S4x256x16, .f32⟩ : BufTy).Contents (Elt F) → (⟨S4x256x16, .f32⟩ : BufTy).Contents (Elt F)),
    binary main_v7845 main_v7854 main_v7855 (addf : (⟨S4x256x16, .f32⟩ : BufTy).Contents (Elt F) → (⟨S4x256x16, .f32⟩ : BufTy).Contents (Elt F) → (⟨S4x256x16, .f32⟩ : BufTy).Contents (Elt F)),
    unary main_arg3 main_v7856 ((extractStridedSlice S4x1x16 ![0, 392, 0] · slices_S4x512x16_S4x1x16_0_392_0) : (⟨S4x512x16, .f32⟩ : BufTy).Contents (Elt F) → (⟨S4x1x16, .f32⟩ : BufTy).Contents (Elt F)),
    reshape main_v7856 main_v7857 rfl shapeCasts_S4x1x16_S4x16,
    unary main_v7857 main_v7858 (broadcastInDim S4x1x16 ![0, 2] bcast_S4x16_S4x1x16_0_2 : (⟨S4x16, .f32⟩ : BufTy).Contents (Elt F) → (⟨S4x1x16, .f32⟩ : BufTy).Contents (Elt F)),
    unary main_v7858 main_v7859 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7855 main_v7859 main_v7860 (mulf : (⟨S4x256x16, .f32⟩ : BufTy).Contents (Elt F) → (⟨S4x256x16, .f32⟩ : BufTy).Contents (Elt F) → (⟨S4x256x16, .f32⟩ : BufTy).Contents (Elt F)),
    nullary main_cst_784 (constant S_ .f32 0x00000000#32),
    binary main_v7860 main_cst_784 main_v7861 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_785 (constantI S_ 32 392#32),
    unary main_c_785 main_v7862 (broadcastInDim S1 ![] bcast_S_S1 : (⟨S_, .i32⟩ : BufTy).Contents (Elt F) → (⟨S1, .i32⟩ : BufTy).Contents (Elt F)),
    ternary main_v7843 main_v7862 main_v7861 main_v7863 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps392_ok : (stepOps392 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step392_val (V : Valuation τ sig (Elt Ideal)) :
    after (stepOps392 (F := Ideal)) V (no_index (Proc.devRef .tc main_v7855)) = stepH 392 (by decide) (V (Proc.devRef .tc main_arg0)) (V (Proc.devRef .tc main_v3)) (V (Proc.devRef .tc main_arg2)) (V (Proc.devRef .tc main_v7835))
    ∧ after (stepOps392 (F := Ideal)) V (no_index (Proc.devRef .tc main_v7863)) = stepY 392 (by decide) (V (Proc.devRef .tc main_arg3)) (stepH 392 (by decide) (V (Proc.devRef .tc main_arg0)) (V (Proc.devRef .tc main_v3)) (V (Proc.devRef .tc main_arg2)) (V (Proc.devRef .tc main_v7835))) (V (Proc.devRef .tc main_v7843)) := by
  simp only [stepOps392]
  after_results_simp
  first | exact ⟨rfl, rfl⟩ | fail "value"
/-- Step 393 of the loop: operations 8653 … 8674 of the program. -/
abbrev stepOps393 : List (HloOp τ sig (Elt F)) :=
  [ unary main_v3 main_v7864 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7855 main_v7864 main_v7865 (mulf : (⟨S4x256x16, .f32⟩ : BufTy).Contents (Elt F) → (⟨S4x256x16, .f32⟩ : BufTy).Contents (Elt F) → (⟨S4x256x16, .f32⟩ : BufTy).Contents (Elt F)),
    unary main_arg0 main_v7866 ((extractStridedSlice S4x1x256 ![0, 393, 0] · slices_S4x512x256_S4x1x256_0_393_0) : (⟨S4x512x256, .f32⟩ : BufTy).Contents (Elt F) → (⟨S4x1x256, .f32⟩ : BufTy).Contents (Elt F)),
    reshape main_v7866 main_v7867 rfl shapeCasts_S4x1x256_S4x256,
    unary main_v7867 main_v7868 (broadcastInDim S4x256x1 ![0, 1] bcast_S4x256_S4x256x1_0_1 : (⟨S4x256, .f32⟩ : BufTy).Contents (Elt F) → (⟨S4x256x1, .f32⟩ : BufTy).Contents (Elt F)),
    unary main_arg2 main_v7869 ((extractStridedSlice S4x1x16 ![0, 393, 0] · slices_S4x512x16_S4x1x16_0_393_0) : (⟨S4x512x16, .f32⟩ : BufTy).Contents (Elt F) → (⟨S4x1x16, .f32⟩ : BufTy).Contents (Elt F)),
    reshape main_v7869 main_v7870 rfl shapeCasts_S4x1x16_S4x16,
    unary main_v7870 main_v7871 (broadcastInDim S4x1x16 ![0, 2] bcast_S4x16_S4x1x16_0_2 : (⟨S4x16, .f32⟩ : BufTy).Contents (Elt F) → (⟨S4x1x16, .f32⟩ : BufTy).Contents (Elt F)),
    unary main_v7868 main_v7872 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7871 main_v7873 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7872 main_v7873 main_v7874 (mulf : (⟨S4x256x16, .f32⟩ : BufTy).Contents (Elt F) → (⟨S4x256x16, .f32⟩ : BufTy).Contents (Elt F) → (⟨S4x256x16, .f32⟩ : BufTy).Contents (Elt F)),
    binary main_v7865 main_v7874 main_v7875 (addf : (⟨S4x256x16, .f32⟩ : BufTy).Contents (Elt F) → (⟨S4x256x16, .f32⟩ : BufTy).Contents (Elt F) → (⟨S4x256x16, .f32⟩ : BufTy).Contents (Elt F)),
    unary main_arg3 main_v7876 ((extractStridedSlice S4x1x16 ![0, 393, 0] · slices_S4x512x16_S4x1x16_0_393_0) : (⟨S4x512x16, .f32⟩ : BufTy).Contents (Elt F) → (⟨S4x1x16, .f32⟩ : BufTy).Contents (Elt F)),
    reshape main_v7876 main_v7877 rfl shapeCasts_S4x1x16_S4x16,
    unary main_v7877 main_v7878 (broadcastInDim S4x1x16 ![0, 2] bcast_S4x16_S4x1x16_0_2 : (⟨S4x16, .f32⟩ : BufTy).Contents (Elt F) → (⟨S4x1x16, .f32⟩ : BufTy).Contents (Elt F)),
    unary main_v7878 main_v7879 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7875 main_v7879 main_v7880 (mulf : (⟨S4x256x16, .f32⟩ : BufTy).Contents (Elt F) → (⟨S4x256x16, .f32⟩ : BufTy).Contents (Elt F) → (⟨S4x256x16, .f32⟩ : BufTy).Contents (Elt F)),
    nullary main_cst_786 (constant S_ .f32 0x00000000#32),
    binary main_v7880 main_cst_786 main_v7881 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_787 (constantI S_ 32 393#32),
    unary main_c_787 main_v7882 (broadcastInDim S1 ![] bcast_S_S1 : (⟨S_, .i32⟩ : BufTy).Contents (Elt F) → (⟨S1, .i32⟩ : BufTy).Contents (Elt F)),
    ternary main_v7863 main_v7882 main_v7881 main_v7883 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps393_ok : (stepOps393 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step393_val (V : Valuation τ sig (Elt Ideal)) :
    after (stepOps393 (F := Ideal)) V (no_index (Proc.devRef .tc main_v7875)) = stepH 393 (by decide) (V (Proc.devRef .tc main_arg0)) (V (Proc.devRef .tc main_v3)) (V (Proc.devRef .tc main_arg2)) (V (Proc.devRef .tc main_v7855))
    ∧ after (stepOps393 (F := Ideal)) V (no_index (Proc.devRef .tc main_v7883)) = stepY 393 (by decide) (V (Proc.devRef .tc main_arg3)) (stepH 393 (by decide) (V (Proc.devRef .tc main_arg0)) (V (Proc.devRef .tc main_v3)) (V (Proc.devRef .tc main_arg2)) (V (Proc.devRef .tc main_v7855))) (V (Proc.devRef .tc main_v7863)) := by
  simp only [stepOps393]
  after_results_simp
  first | exact ⟨rfl, rfl⟩ | fail "value"
/-- Step 394 of the loop: operations 8675 … 8696 of the program. -/
abbrev stepOps394 : List (HloOp τ sig (Elt F)) :=
  [ unary main_v3 main_v7884 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7875 main_v7884 main_v7885 (mulf : (⟨S4x256x16, .f32⟩ : BufTy).Contents (Elt F) → (⟨S4x256x16, .f32⟩ : BufTy).Contents (Elt F) → (⟨S4x256x16, .f32⟩ : BufTy).Contents (Elt F)),
    unary main_arg0 main_v7886 ((extractStridedSlice S4x1x256 ![0, 394, 0] · slices_S4x512x256_S4x1x256_0_394_0) : (⟨S4x512x256, .f32⟩ : BufTy).Contents (Elt F) → (⟨S4x1x256, .f32⟩ : BufTy).Contents (Elt F)),
    reshape main_v7886 main_v7887 rfl shapeCasts_S4x1x256_S4x256,
    unary main_v7887 main_v7888 (broadcastInDim S4x256x1 ![0, 1] bcast_S4x256_S4x256x1_0_1 : (⟨S4x256, .f32⟩ : BufTy).Contents (Elt F) → (⟨S4x256x1, .f32⟩ : BufTy).Contents (Elt F)),
    unary main_arg2 main_v7889 ((extractStridedSlice S4x1x16 ![0, 394, 0] · slices_S4x512x16_S4x1x16_0_394_0) : (⟨S4x512x16, .f32⟩ : BufTy).Contents (Elt F) → (⟨S4x1x16, .f32⟩ : BufTy).Contents (Elt F)),
    reshape main_v7889 main_v7890 rfl shapeCasts_S4x1x16_S4x16,
    unary main_v7890 main_v7891 (broadcastInDim S4x1x16 ![0, 2] bcast_S4x16_S4x1x16_0_2 : (⟨S4x16, .f32⟩ : BufTy).Contents (Elt F) → (⟨S4x1x16, .f32⟩ : BufTy).Contents (Elt F)),
    unary main_v7888 main_v7892 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7891 main_v7893 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7892 main_v7893 main_v7894 (mulf : (⟨S4x256x16, .f32⟩ : BufTy).Contents (Elt F) → (⟨S4x256x16, .f32⟩ : BufTy).Contents (Elt F) → (⟨S4x256x16, .f32⟩ : BufTy).Contents (Elt F)),
    binary main_v7885 main_v7894 main_v7895 (addf : (⟨S4x256x16, .f32⟩ : BufTy).Contents (Elt F) → (⟨S4x256x16, .f32⟩ : BufTy).Contents (Elt F) → (⟨S4x256x16, .f32⟩ : BufTy).Contents (Elt F)),
    unary main_arg3 main_v7896 ((extractStridedSlice S4x1x16 ![0, 394, 0] · slices_S4x512x16_S4x1x16_0_394_0) : (⟨S4x512x16, .f32⟩ : BufTy).Contents (Elt F) → (⟨S4x1x16, .f32⟩ : BufTy).Contents (Elt F)),
    reshape main_v7896 main_v7897 rfl shapeCasts_S4x1x16_S4x16,
    unary main_v7897 main_v7898 (broadcastInDim S4x1x16 ![0, 2] bcast_S4x16_S4x1x16_0_2 : (⟨S4x16, .f32⟩ : BufTy).Contents (Elt F) → (⟨S4x1x16, .f32⟩ : BufTy).Contents (Elt F)),
    unary main_v7898 main_v7899 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7895 main_v7899 main_v7900 (mulf : (⟨S4x256x16, .f32⟩ : BufTy).Contents (Elt F) → (⟨S4x256x16, .f32⟩ : BufTy).Contents (Elt F) → (⟨S4x256x16, .f32⟩ : BufTy).Contents (Elt F)),
    nullary main_cst_788 (constant S_ .f32 0x00000000#32),
    binary main_v7900 main_cst_788 main_v7901 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_789 (constantI S_ 32 394#32),
    unary main_c_789 main_v7902 (broadcastInDim S1 ![] bcast_S_S1 : (⟨S_, .i32⟩ : BufTy).Contents (Elt F) → (⟨S1, .i32⟩ : BufTy).Contents (Elt F)),
    ternary main_v7883 main_v7902 main_v7901 main_v7903 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps394_ok : (stepOps394 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step394_val (V : Valuation τ sig (Elt Ideal)) :
    after (stepOps394 (F := Ideal)) V (no_index (Proc.devRef .tc main_v7895)) = stepH 394 (by decide) (V (Proc.devRef .tc main_arg0)) (V (Proc.devRef .tc main_v3)) (V (Proc.devRef .tc main_arg2)) (V (Proc.devRef .tc main_v7875))
    ∧ after (stepOps394 (F := Ideal)) V (no_index (Proc.devRef .tc main_v7903)) = stepY 394 (by decide) (V (Proc.devRef .tc main_arg3)) (stepH 394 (by decide) (V (Proc.devRef .tc main_arg0)) (V (Proc.devRef .tc main_v3)) (V (Proc.devRef .tc main_arg2)) (V (Proc.devRef .tc main_v7875))) (V (Proc.devRef .tc main_v7883)) := by
  simp only [stepOps394]
  after_results_simp
  first | exact ⟨rfl, rfl⟩ | fail "value"
/-- Step 395 of the loop: operations 8697 … 8718 of the program. -/
abbrev stepOps395 : List (HloOp τ sig (Elt F)) :=
  [ unary main_v3 main_v7904 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7895 main_v7904 main_v7905 (mulf : (⟨S4x256x16, .f32⟩ : BufTy).Contents (Elt F) → (⟨S4x256x16, .f32⟩ : BufTy).Contents (Elt F) → (⟨S4x256x16, .f32⟩ : BufTy).Contents (Elt F)),
    unary main_arg0 main_v7906 ((extractStridedSlice S4x1x256 ![0, 395, 0] · slices_S4x512x256_S4x1x256_0_395_0) : (⟨S4x512x256, .f32⟩ : BufTy).Contents (Elt F) → (⟨S4x1x256, .f32⟩ : BufTy).Contents (Elt F)),
    reshape main_v7906 main_v7907 rfl shapeCasts_S4x1x256_S4x256,
    unary main_v7907 main_v7908 (broadcastInDim S4x256x1 ![0, 1] bcast_S4x256_S4x256x1_0_1 : (⟨S4x256, .f32⟩ : BufTy).Contents (Elt F) → (⟨S4x256x1, .f32⟩ : BufTy).Contents (Elt F)),
    unary main_arg2 main_v7909 ((extractStridedSlice S4x1x16 ![0, 395, 0] · slices_S4x512x16_S4x1x16_0_395_0) : (⟨S4x512x16, .f32⟩ : BufTy).Contents (Elt F) → (⟨S4x1x16, .f32⟩ : BufTy).Contents (Elt F)),
    reshape main_v7909 main_v7910 rfl shapeCasts_S4x1x16_S4x16,
    unary main_v7910 main_v7911 (broadcastInDim S4x1x16 ![0, 2] bcast_S4x16_S4x1x16_0_2 : (⟨S4x16, .f32⟩ : BufTy).Contents (Elt F) → (⟨S4x1x16, .f32⟩ : BufTy).Contents (Elt F)),
    unary main_v7908 main_v7912 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7911 main_v7913 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7912 main_v7913 main_v7914 (mulf : (⟨S4x256x16, .f32⟩ : BufTy).Contents (Elt F) → (⟨S4x256x16, .f32⟩ : BufTy).Contents (Elt F) → (⟨S4x256x16, .f32⟩ : BufTy).Contents (Elt F)),
    binary main_v7905 main_v7914 main_v7915 (addf : (⟨S4x256x16, .f32⟩ : BufTy).Contents (Elt F) → (⟨S4x256x16, .f32⟩ : BufTy).Contents (Elt F) → (⟨S4x256x16, .f32⟩ : BufTy).Contents (Elt F)),
    unary main_arg3 main_v7916 ((extractStridedSlice S4x1x16 ![0, 395, 0] · slices_S4x512x16_S4x1x16_0_395_0) : (⟨S4x512x16, .f32⟩ : BufTy).Contents (Elt F) → (⟨S4x1x16, .f32⟩ : BufTy).Contents (Elt F)),
    reshape main_v7916 main_v7917 rfl shapeCasts_S4x1x16_S4x16,
    unary main_v7917 main_v7918 (broadcastInDim S4x1x16 ![0, 2] bcast_S4x16_S4x1x16_0_2 : (⟨S4x16, .f32⟩ : BufTy).Contents (Elt F) → (⟨S4x1x16, .f32⟩ : BufTy).Contents (Elt F)),
    unary main_v7918 main_v7919 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7915 main_v7919 main_v7920 (mulf : (⟨S4x256x16, .f32⟩ : BufTy).Contents (Elt F) → (⟨S4x256x16, .f32⟩ : BufTy).Contents (Elt F) → (⟨S4x256x16, .f32⟩ : BufTy).Contents (Elt F)),
    nullary main_cst_790 (constant S_ .f32 0x00000000#32),
    binary main_v7920 main_cst_790 main_v7921 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_791 (constantI S_ 32 395#32),
    unary main_c_791 main_v7922 (broadcastInDim S1 ![] bcast_S_S1 : (⟨S_, .i32⟩ : BufTy).Contents (Elt F) → (⟨S1, .i32⟩ : BufTy).Contents (Elt F)),
    ternary main_v7903 main_v7922 main_v7921 main_v7923 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps395_ok : (stepOps395 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step395_val (V : Valuation τ sig (Elt Ideal)) :
    after (stepOps395 (F := Ideal)) V (no_index (Proc.devRef .tc main_v7915)) = stepH 395 (by decide) (V (Proc.devRef .tc main_arg0)) (V (Proc.devRef .tc main_v3)) (V (Proc.devRef .tc main_arg2)) (V (Proc.devRef .tc main_v7895))
    ∧ after (stepOps395 (F := Ideal)) V (no_index (Proc.devRef .tc main_v7923)) = stepY 395 (by decide) (V (Proc.devRef .tc main_arg3)) (stepH 395 (by decide) (V (Proc.devRef .tc main_arg0)) (V (Proc.devRef .tc main_v3)) (V (Proc.devRef .tc main_arg2)) (V (Proc.devRef .tc main_v7895))) (V (Proc.devRef .tc main_v7903)) := by
  simp only [stepOps395]
  after_results_simp
  first | exact ⟨rfl, rfl⟩ | fail "value"
/-- Step 396 of the loop: operations 8719 … 8740 of the program. -/
abbrev stepOps396 : List (HloOp τ sig (Elt F)) :=
  [ unary main_v3 main_v7924 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7915 main_v7924 main_v7925 (mulf : (⟨S4x256x16, .f32⟩ : BufTy).Contents (Elt F) → (⟨S4x256x16, .f32⟩ : BufTy).Contents (Elt F) → (⟨S4x256x16, .f32⟩ : BufTy).Contents (Elt F)),
    unary main_arg0 main_v7926 ((extractStridedSlice S4x1x256 ![0, 396, 0] · slices_S4x512x256_S4x1x256_0_396_0) : (⟨S4x512x256, .f32⟩ : BufTy).Contents (Elt F) → (⟨S4x1x256, .f32⟩ : BufTy).Contents (Elt F)),
    reshape main_v7926 main_v7927 rfl shapeCasts_S4x1x256_S4x256,
    unary main_v7927 main_v7928 (broadcastInDim S4x256x1 ![0, 1] bcast_S4x256_S4x256x1_0_1 : (⟨S4x256, .f32⟩ : BufTy).Contents (Elt F) → (⟨S4x256x1, .f32⟩ : BufTy).Contents (Elt F)),
    unary main_arg2 main_v7929 ((extractStridedSlice S4x1x16 ![0, 396, 0] · slices_S4x512x16_S4x1x16_0_396_0) : (⟨S4x512x16, .f32⟩ : BufTy).Contents (Elt F) → (⟨S4x1x16, .f32⟩ : BufTy).Contents (Elt F)),
    reshape main_v7929 main_v7930 rfl shapeCasts_S4x1x16_S4x16,
    unary main_v7930 main_v7931 (broadcastInDim S4x1x16 ![0, 2] bcast_S4x16_S4x1x16_0_2 : (⟨S4x16, .f32⟩ : BufTy).Contents (Elt F) → (⟨S4x1x16, .f32⟩ : BufTy).Contents (Elt F)),
    unary main_v7928 main_v7932 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7931 main_v7933 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7932 main_v7933 main_v7934 (mulf : (⟨S4x256x16, .f32⟩ : BufTy).Contents (Elt F) → (⟨S4x256x16, .f32⟩ : BufTy).Contents (Elt F) → (⟨S4x256x16, .f32⟩ : BufTy).Contents (Elt F)),
    binary main_v7925 main_v7934 main_v7935 (addf : (⟨S4x256x16, .f32⟩ : BufTy).Contents (Elt F) → (⟨S4x256x16, .f32⟩ : BufTy).Contents (Elt F) → (⟨S4x256x16, .f32⟩ : BufTy).Contents (Elt F)),
    unary main_arg3 main_v7936 ((extractStridedSlice S4x1x16 ![0, 396, 0] · slices_S4x512x16_S4x1x16_0_396_0) : (⟨S4x512x16, .f32⟩ : BufTy).Contents (Elt F) → (⟨S4x1x16, .f32⟩ : BufTy).Contents (Elt F)),
    reshape main_v7936 main_v7937 rfl shapeCasts_S4x1x16_S4x16,
    unary main_v7937 main_v7938 (broadcastInDim S4x1x16 ![0, 2] bcast_S4x16_S4x1x16_0_2 : (⟨S4x16, .f32⟩ : BufTy).Contents (Elt F) → (⟨S4x1x16, .f32⟩ : BufTy).Contents (Elt F)),
    unary main_v7938 main_v7939 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7935 main_v7939 main_v7940 (mulf : (⟨S4x256x16, .f32⟩ : BufTy).Contents (Elt F) → (⟨S4x256x16, .f32⟩ : BufTy).Contents (Elt F) → (⟨S4x256x16, .f32⟩ : BufTy).Contents (Elt F)),
    nullary main_cst_792 (constant S_ .f32 0x00000000#32),
    binary main_v7940 main_cst_792 main_v7941 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_793 (constantI S_ 32 396#32),
    unary main_c_793 main_v7942 (broadcastInDim S1 ![] bcast_S_S1 : (⟨S_, .i32⟩ : BufTy).Contents (Elt F) → (⟨S1, .i32⟩ : BufTy).Contents (Elt F)),
    ternary main_v7923 main_v7942 main_v7941 main_v7943 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps396_ok : (stepOps396 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step396_val (V : Valuation τ sig (Elt Ideal)) :
    after (stepOps396 (F := Ideal)) V (no_index (Proc.devRef .tc main_v7935)) = stepH 396 (by decide) (V (Proc.devRef .tc main_arg0)) (V (Proc.devRef .tc main_v3)) (V (Proc.devRef .tc main_arg2)) (V (Proc.devRef .tc main_v7915))
    ∧ after (stepOps396 (F := Ideal)) V (no_index (Proc.devRef .tc main_v7943)) = stepY 396 (by decide) (V (Proc.devRef .tc main_arg3)) (stepH 396 (by decide) (V (Proc.devRef .tc main_arg0)) (V (Proc.devRef .tc main_v3)) (V (Proc.devRef .tc main_arg2)) (V (Proc.devRef .tc main_v7915))) (V (Proc.devRef .tc main_v7923)) := by
  simp only [stepOps396]
  after_results_simp
  first | exact ⟨rfl, rfl⟩ | fail "value"
/-- Step 397 of the loop: operations 8741 … 8762 of the program. -/
abbrev stepOps397 : List (HloOp τ sig (Elt F)) :=
  [ unary main_v3 main_v7944 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7935 main_v7944 main_v7945 (mulf : (⟨S4x256x16, .f32⟩ : BufTy).Contents (Elt F) → (⟨S4x256x16, .f32⟩ : BufTy).Contents (Elt F) → (⟨S4x256x16, .f32⟩ : BufTy).Contents (Elt F)),
    unary main_arg0 main_v7946 ((extractStridedSlice S4x1x256 ![0, 397, 0] · slices_S4x512x256_S4x1x256_0_397_0) : (⟨S4x512x256, .f32⟩ : BufTy).Contents (Elt F) → (⟨S4x1x256, .f32⟩ : BufTy).Contents (Elt F)),
    reshape main_v7946 main_v7947 rfl shapeCasts_S4x1x256_S4x256,
    unary main_v7947 main_v7948 (broadcastInDim S4x256x1 ![0, 1] bcast_S4x256_S4x256x1_0_1 : (⟨S4x256, .f32⟩ : BufTy).Contents (Elt F) → (⟨S4x256x1, .f32⟩ : BufTy).Contents (Elt F)),
    unary main_arg2 main_v7949 ((extractStridedSlice S4x1x16 ![0, 397, 0] · slices_S4x512x16_S4x1x16_0_397_0) : (⟨S4x512x16, .f32⟩ : BufTy).Contents (Elt F) → (⟨S4x1x16, .f32⟩ : BufTy).Contents (Elt F)),
    reshape main_v7949 main_v7950 rfl shapeCasts_S4x1x16_S4x16,
    unary main_v7950 main_v7951 (broadcastInDim S4x1x16 ![0, 2] bcast_S4x16_S4x1x16_0_2 : (⟨S4x16, .f32⟩ : BufTy).Contents (Elt F) → (⟨S4x1x16, .f32⟩ : BufTy).Contents (Elt F)),
    unary main_v7948 main_v7952 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7951 main_v7953 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7952 main_v7953 main_v7954 (mulf : (⟨S4x256x16, .f32⟩ : BufTy).Contents (Elt F) → (⟨S4x256x16, .f32⟩ : BufTy).Contents (Elt F) → (⟨S4x256x16, .f32⟩ : BufTy).Contents (Elt F)),
    binary main_v7945 main_v7954 main_v7955 (addf : (⟨S4x256x16, .f32⟩ : BufTy).Contents (Elt F) → (⟨S4x256x16, .f32⟩ : BufTy).Contents (Elt F) → (⟨S4x256x16, .f32⟩ : BufTy).Contents (Elt F)),
    unary main_arg3 main_v7956 ((extractStridedSlice S4x1x16 ![0, 397, 0] · slices_S4x512x16_S4x1x16_0_397_0) : (⟨S4x512x16, .f32⟩ : BufTy).Contents (Elt F) → (⟨S4x1x16, .f32⟩ : BufTy).Contents (Elt F)),
    reshape main_v7956 main_v7957 rfl shapeCasts_S4x1x16_S4x16,
    unary main_v7957 main_v7958 (broadcastInDim S4x1x16 ![0, 2] bcast_S4x16_S4x1x16_0_2 : (⟨S4x16, .f32⟩ : BufTy).Contents (Elt F) → (⟨S4x1x16, .f32⟩ : BufTy).Contents (Elt F)),
    unary main_v7958 main_v7959 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7955 main_v7959 main_v7960 (mulf : (⟨S4x256x16, .f32⟩ : BufTy).Contents (Elt F) → (⟨S4x256x16, .f32⟩ : BufTy).Contents (Elt F) → (⟨S4x256x16, .f32⟩ : BufTy).Contents (Elt F)),
    nullary main_cst_794 (constant S_ .f32 0x00000000#32),
    binary main_v7960 main_cst_794 main_v7961 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_795 (constantI S_ 32 397#32),
    unary main_c_795 main_v7962 (broadcastInDim S1 ![] bcast_S_S1 : (⟨S_, .i32⟩ : BufTy).Contents (Elt F) → (⟨S1, .i32⟩ : BufTy).Contents (Elt F)),
    ternary main_v7943 main_v7962 main_v7961 main_v7963 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps397_ok : (stepOps397 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step397_val (V : Valuation τ sig (Elt Ideal)) :
    after (stepOps397 (F := Ideal)) V (no_index (Proc.devRef .tc main_v7955)) = stepH 397 (by decide) (V (Proc.devRef .tc main_arg0)) (V (Proc.devRef .tc main_v3)) (V (Proc.devRef .tc main_arg2)) (V (Proc.devRef .tc main_v7935))
    ∧ after (stepOps397 (F := Ideal)) V (no_index (Proc.devRef .tc main_v7963)) = stepY 397 (by decide) (V (Proc.devRef .tc main_arg3)) (stepH 397 (by decide) (V (Proc.devRef .tc main_arg0)) (V (Proc.devRef .tc main_v3)) (V (Proc.devRef .tc main_arg2)) (V (Proc.devRef .tc main_v7935))) (V (Proc.devRef .tc main_v7943)) := by
  simp only [stepOps397]
  after_results_simp
  first | exact ⟨rfl, rfl⟩ | fail "value"
/-- Step 398 of the loop: operations 8763 … 8784 of the program. -/
abbrev stepOps398 : List (HloOp τ sig (Elt F)) :=
  [ unary main_v3 main_v7964 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7955 main_v7964 main_v7965 (mulf : (⟨S4x256x16, .f32⟩ : BufTy).Contents (Elt F) → (⟨S4x256x16, .f32⟩ : BufTy).Contents (Elt F) → (⟨S4x256x16, .f32⟩ : BufTy).Contents (Elt F)),
    unary main_arg0 main_v7966 ((extractStridedSlice S4x1x256 ![0, 398, 0] · slices_S4x512x256_S4x1x256_0_398_0) : (⟨S4x512x256, .f32⟩ : BufTy).Contents (Elt F) → (⟨S4x1x256, .f32⟩ : BufTy).Contents (Elt F)),
    reshape main_v7966 main_v7967 rfl shapeCasts_S4x1x256_S4x256,
    unary main_v7967 main_v7968 (broadcastInDim S4x256x1 ![0, 1] bcast_S4x256_S4x256x1_0_1 : (⟨S4x256, .f32⟩ : BufTy).Contents (Elt F) → (⟨S4x256x1, .f32⟩ : BufTy).Contents (Elt F)),
    unary main_arg2 main_v7969 ((extractStridedSlice S4x1x16 ![0, 398, 0] · slices_S4x512x16_S4x1x16_0_398_0) : (⟨S4x512x16, .f32⟩ : BufTy).Contents (Elt F) → (⟨S4x1x16, .f32⟩ : BufTy).Contents (Elt F)),
    reshape main_v7969 main_v7970 rfl shapeCasts_S4x1x16_S4x16,
    unary main_v7970 main_v7971 (broadcastInDim S4x1x16 ![0, 2] bcast_S4x16_S4x1x16_0_2 : (⟨S4x16, .f32⟩ : BufTy).Contents (Elt F) → (⟨S4x1x16, .f32⟩ : BufTy).Contents (Elt F)),
    unary main_v7968 main_v7972 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7971 main_v7973 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7972 main_v7973 main_v7974 (mulf : (⟨S4x256x16, .f32⟩ : BufTy).Contents (Elt F) → (⟨S4x256x16, .f32⟩ : BufTy).Contents (Elt F) → (⟨S4x256x16, .f32⟩ : BufTy).Contents (Elt F)),
    binary main_v7965 main_v7974 main_v7975 (addf : (⟨S4x256x16, .f32⟩ : BufTy).Contents (Elt F) → (⟨S4x256x16, .f32⟩ : BufTy).Contents (Elt F) → (⟨S4x256x16, .f32⟩ : BufTy).Contents (Elt F)),
    unary main_arg3 main_v7976 ((extractStridedSlice S4x1x16 ![0, 398, 0] · slices_S4x512x16_S4x1x16_0_398_0) : (⟨S4x512x16, .f32⟩ : BufTy).Contents (Elt F) → (⟨S4x1x16, .f32⟩ : BufTy).Contents (Elt F)),
    reshape main_v7976 main_v7977 rfl shapeCasts_S4x1x16_S4x16,
    unary main_v7977 main_v7978 (broadcastInDim S4x1x16 ![0, 2] bcast_S4x16_S4x1x16_0_2 : (⟨S4x16, .f32⟩ : BufTy).Contents (Elt F) → (⟨S4x1x16, .f32⟩ : BufTy).Contents (Elt F)),
    unary main_v7978 main_v7979 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7975 main_v7979 main_v7980 (mulf : (⟨S4x256x16, .f32⟩ : BufTy).Contents (Elt F) → (⟨S4x256x16, .f32⟩ : BufTy).Contents (Elt F) → (⟨S4x256x16, .f32⟩ : BufTy).Contents (Elt F)),
    nullary main_cst_796 (constant S_ .f32 0x00000000#32),
    binary main_v7980 main_cst_796 main_v7981 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_797 (constantI S_ 32 398#32),
    unary main_c_797 main_v7982 (broadcastInDim S1 ![] bcast_S_S1 : (⟨S_, .i32⟩ : BufTy).Contents (Elt F) → (⟨S1, .i32⟩ : BufTy).Contents (Elt F)),
    ternary main_v7963 main_v7982 main_v7981 main_v7983 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps398_ok : (stepOps398 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step398_val (V : Valuation τ sig (Elt Ideal)) :
    after (stepOps398 (F := Ideal)) V (no_index (Proc.devRef .tc main_v7975)) = stepH 398 (by decide) (V (Proc.devRef .tc main_arg0)) (V (Proc.devRef .tc main_v3)) (V (Proc.devRef .tc main_arg2)) (V (Proc.devRef .tc main_v7955))
    ∧ after (stepOps398 (F := Ideal)) V (no_index (Proc.devRef .tc main_v7983)) = stepY 398 (by decide) (V (Proc.devRef .tc main_arg3)) (stepH 398 (by decide) (V (Proc.devRef .tc main_arg0)) (V (Proc.devRef .tc main_v3)) (V (Proc.devRef .tc main_arg2)) (V (Proc.devRef .tc main_v7955))) (V (Proc.devRef .tc main_v7963)) := by
  simp only [stepOps398]
  after_results_simp
  first | exact ⟨rfl, rfl⟩ | fail "value"
/-- Step 399 of the loop: operations 8785 … 8806 of the program. -/
abbrev stepOps399 : List (HloOp τ sig (Elt F)) :=
  [ unary main_v3 main_v7984 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7975 main_v7984 main_v7985 (mulf : (⟨S4x256x16, .f32⟩ : BufTy).Contents (Elt F) → (⟨S4x256x16, .f32⟩ : BufTy).Contents (Elt F) → (⟨S4x256x16, .f32⟩ : BufTy).Contents (Elt F)),
    unary main_arg0 main_v7986 ((extractStridedSlice S4x1x256 ![0, 399, 0] · slices_S4x512x256_S4x1x256_0_399_0) : (⟨S4x512x256, .f32⟩ : BufTy).Contents (Elt F) → (⟨S4x1x256, .f32⟩ : BufTy).Contents (Elt F)),
    reshape main_v7986 main_v7987 rfl shapeCasts_S4x1x256_S4x256,
    unary main_v7987 main_v7988 (broadcastInDim S4x256x1 ![0, 1] bcast_S4x256_S4x256x1_0_1 : (⟨S4x256, .f32⟩ : BufTy).Contents (Elt F) → (⟨S4x256x1, .f32⟩ : BufTy).Contents (Elt F)),
    unary main_arg2 main_v7989 ((extractStridedSlice S4x1x16 ![0, 399, 0] · slices_S4x512x16_S4x1x16_0_399_0) : (⟨S4x512x16, .f32⟩ : BufTy).Contents (Elt F) → (⟨S4x1x16, .f32⟩ : BufTy).Contents (Elt F)),
    reshape main_v7989 main_v7990 rfl shapeCasts_S4x1x16_S4x16,
    unary main_v7990 main_v7991 (broadcastInDim S4x1x16 ![0, 2] bcast_S4x16_S4x1x16_0_2 : (⟨S4x16, .f32⟩ : BufTy).Contents (Elt F) → (⟨S4x1x16, .f32⟩ : BufTy).Contents (Elt F)),
    unary main_v7988 main_v7992 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v7991 main_v7993 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7992 main_v7993 main_v7994 (mulf : (⟨S4x256x16, .f32⟩ : BufTy).Contents (Elt F) → (⟨S4x256x16, .f32⟩ : BufTy).Contents (Elt F) → (⟨S4x256x16, .f32⟩ : BufTy).Contents (Elt F)),
    binary main_v7985 main_v7994 main_v7995 (addf : (⟨S4x256x16, .f32⟩ : BufTy).Contents (Elt F) → (⟨S4x256x16, .f32⟩ : BufTy).Contents (Elt F) → (⟨S4x256x16, .f32⟩ : BufTy).Contents (Elt F)),
    unary main_arg3 main_v7996 ((extractStridedSlice S4x1x16 ![0, 399, 0] · slices_S4x512x16_S4x1x16_0_399_0) : (⟨S4x512x16, .f32⟩ : BufTy).Contents (Elt F) → (⟨S4x1x16, .f32⟩ : BufTy).Contents (Elt F)),
    reshape main_v7996 main_v7997 rfl shapeCasts_S4x1x16_S4x16,
    unary main_v7997 main_v7998 (broadcastInDim S4x1x16 ![0, 2] bcast_S4x16_S4x1x16_0_2 : (⟨S4x16, .f32⟩ : BufTy).Contents (Elt F) → (⟨S4x1x16, .f32⟩ : BufTy).Contents (Elt F)),
    unary main_v7998 main_v7999 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v7995 main_v7999 main_v8000 (mulf : (⟨S4x256x16, .f32⟩ : BufTy).Contents (Elt F) → (⟨S4x256x16, .f32⟩ : BufTy).Contents (Elt F) → (⟨S4x256x16, .f32⟩ : BufTy).Contents (Elt F)),
    nullary main_cst_798 (constant S_ .f32 0x00000000#32),
    binary main_v8000 main_cst_798 main_v8001 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_799 (constantI S_ 32 399#32),
    unary main_c_799 main_v8002 (broadcastInDim S1 ![] bcast_S_S1 : (⟨S_, .i32⟩ : BufTy).Contents (Elt F) → (⟨S1, .i32⟩ : BufTy).Contents (Elt F)),
    ternary main_v7983 main_v8002 main_v8001 main_v8003 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps399_ok : (stepOps399 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step399_val (V : Valuation τ sig (Elt Ideal)) :
    after (stepOps399 (F := Ideal)) V (no_index (Proc.devRef .tc main_v7995)) = stepH 399 (by decide) (V (Proc.devRef .tc main_arg0)) (V (Proc.devRef .tc main_v3)) (V (Proc.devRef .tc main_arg2)) (V (Proc.devRef .tc main_v7975))
    ∧ after (stepOps399 (F := Ideal)) V (no_index (Proc.devRef .tc main_v8003)) = stepY 399 (by decide) (V (Proc.devRef .tc main_arg3)) (stepH 399 (by decide) (V (Proc.devRef .tc main_arg0)) (V (Proc.devRef .tc main_v3)) (V (Proc.devRef .tc main_arg2)) (V (Proc.devRef .tc main_v7975))) (V (Proc.devRef .tc main_v7983)) := by
  simp only [stepOps399]
  after_results_simp
  first | exact ⟨rfl, rfl⟩ | fail "value"

end Cert.ReferenceIdeal.RefRun

end
-- ==== Proof.RefTableStep25.lean ====
/-
  Steps 400 … 415 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 400 of the loop: operations 8807 … 8828 of the program. -/
abbrev stepOps400 : List (HloOp τ sig (Elt F)) :=
  [ unary main_v3 main_v8004 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v7995 main_v8004 main_v8005 (mulf : (⟨S4x256x16, .f32⟩ : BufTy).Contents (Elt F) → (⟨S4x256x16, .f32⟩ : BufTy).Contents (Elt F) → (⟨S4x256x16, .f32⟩ : BufTy).Contents (Elt F)),
    unary main_arg0 main_v8006 ((extractStridedSlice S4x1x256 ![0, 400, 0] · slices_S4x512x256_S4x1x256_0_400_0) : (⟨S4x512x256, .f32⟩ : BufTy).Contents (Elt F) → (⟨S4x1x256, .f32⟩ : BufTy).Contents (Elt F)),
    reshape main_v8006 main_v8007 rfl shapeCasts_S4x1x256_S4x256,
    unary main_v8007 main_v8008 (broadcastInDim S4x256x1 ![0, 1] bcast_S4x256_S4x256x1_0_1 : (⟨S4x256, .f32⟩ : BufTy).Contents (Elt F) → (⟨S4x256x1, .f32⟩ : BufTy).Contents (Elt F)),
    unary main_arg2 main_v8009 ((extractStridedSlice S4x1x16 ![0, 400, 0] · slices_S4x512x16_S4x1x16_0_400_0) : (⟨S4x512x16, .f32⟩ : BufTy).Contents (Elt F) → (⟨S4x1x16, .f32⟩ : BufTy).Contents (Elt F)),
    reshape main_v8009 main_v8010 rfl shapeCasts_S4x1x16_S4x16,
    unary main_v8010 main_v8011 (broadcastInDim S4x1x16 ![0, 2] bcast_S4x16_S4x1x16_0_2 : (⟨S4x16, .f32⟩ : BufTy).Contents (Elt F) → (⟨S4x1x16, .f32⟩ : BufTy).Contents (Elt F)),
    unary main_v8008 main_v8012 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8011 main_v8013 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8012 main_v8013 main_v8014 (mulf : (⟨S4x256x16, .f32⟩ : BufTy).Contents (Elt F) → (⟨S4x256x16, .f32⟩ : BufTy).Contents (Elt F) → (⟨S4x256x16, .f32⟩ : BufTy).Contents (Elt F)),
    binary main_v8005 main_v8014 main_v8015 (addf : (⟨S4x256x16, .f32⟩ : BufTy).Contents (Elt F) → (⟨S4x256x16, .f32⟩ : BufTy).Contents (Elt F) → (⟨S4x256x16, .f32⟩ : BufTy).Contents (Elt F)),
    unary main_arg3 main_v8016 ((extractStridedSlice S4x1x16 ![0, 400, 0] · slices_S4x512x16_S4x1x16_0_400_0) : (⟨S4x512x16, .f32⟩ : BufTy).Contents (Elt F) → (⟨S4x1x16, .f32⟩ : BufTy).Contents (Elt F)),
    reshape main_v8016 main_v8017 rfl shapeCasts_S4x1x16_S4x16,
    unary main_v8017 main_v8018 (broadcastInDim S4x1x16 ![0, 2] bcast_S4x16_S4x1x16_0_2 : (⟨S4x16, .f32⟩ : BufTy).Contents (Elt F) → (⟨S4x1x16, .f32⟩ : BufTy).Contents (Elt F)),
    unary main_v8018 main_v8019 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8015 main_v8019 main_v8020 (mulf : (⟨S4x256x16, .f32⟩ : BufTy).Contents (Elt F) → (⟨S4x256x16, .f32⟩ : BufTy).Contents (Elt F) → (⟨S4x256x16, .f32⟩ : BufTy).Contents (Elt F)),
    nullary main_cst_800 (constant S_ .f32 0x00000000#32),
    binary main_v8020 main_cst_800 main_v8021 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_801 (constantI S_ 32 400#32),
    unary main_c_801 main_v8022 (broadcastInDim S1 ![] bcast_S_S1 : (⟨S_, .i32⟩ : BufTy).Contents (Elt F) → (⟨S1, .i32⟩ : BufTy).Contents (Elt F)),
    ternary main_v8003 main_v8022 main_v8021 main_v8023 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps400_ok : (stepOps400 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step400_val (V : Valuation τ sig (Elt Ideal)) :
    after (stepOps400 (F := Ideal)) V (no_index (Proc.devRef .tc main_v8015)) = stepH 400 (by decide) (V (Proc.devRef .tc main_arg0)) (V (Proc.devRef .tc main_v3)) (V (Proc.devRef .tc main_arg2)) (V (Proc.devRef .tc main_v7995))
    ∧ after (stepOps400 (F := Ideal)) V (no_index (Proc.devRef .tc main_v8023)) = stepY 400 (by decide) (V (Proc.devRef .tc main_arg3)) (stepH 400 (by decide) (V (Proc.devRef .tc main_arg0)) (V (Proc.devRef .tc main_v3)) (V (Proc.devRef .tc main_arg2)) (V (Proc.devRef .tc main_v7995))) (V (Proc.devRef .tc main_v8003)) := by
  simp only [stepOps400]
  after_results_simp
  first | exact ⟨rfl, rfl⟩ | fail "value"
/-- Step 401 of the loop: operations 8829 … 8850 of the program. -/
abbrev stepOps401 : List (HloOp τ sig (Elt F)) :=
  [ unary main_v3 main_v8024 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8015 main_v8024 main_v8025 (mulf : (⟨S4x256x16, .f32⟩ : BufTy).Contents (Elt F) → (⟨S4x256x16, .f32⟩ : BufTy).Contents (Elt F) → (⟨S4x256x16, .f32⟩ : BufTy).Contents (Elt F)),
    unary main_arg0 main_v8026 ((extractStridedSlice S4x1x256 ![0, 401, 0] · slices_S4x512x256_S4x1x256_0_401_0) : (⟨S4x512x256, .f32⟩ : BufTy).Contents (Elt F) → (⟨S4x1x256, .f32⟩ : BufTy).Contents (Elt F)),
    reshape main_v8026 main_v8027 rfl shapeCasts_S4x1x256_S4x256,
    unary main_v8027 main_v8028 (broadcastInDim S4x256x1 ![0, 1] bcast_S4x256_S4x256x1_0_1 : (⟨S4x256, .f32⟩ : BufTy).Contents (Elt F) → (⟨S4x256x1, .f32⟩ : BufTy).Contents (Elt F)),
    unary main_arg2 main_v8029 ((extractStridedSlice S4x1x16 ![0, 401, 0] · slices_S4x512x16_S4x1x16_0_401_0) : (⟨S4x512x16, .f32⟩ : BufTy).Contents (Elt F) → (⟨S4x1x16, .f32⟩ : BufTy).Contents (Elt F)),
    reshape main_v8029 main_v8030 rfl shapeCasts_S4x1x16_S4x16,
    unary main_v8030 main_v8031 (broadcastInDim S4x1x16 ![0, 2] bcast_S4x16_S4x1x16_0_2 : (⟨S4x16, .f32⟩ : BufTy).Contents (Elt F) → (⟨S4x1x16, .f32⟩ : BufTy).Contents (Elt F)),
    unary main_v8028 main_v8032 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8031 main_v8033 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8032 main_v8033 main_v8034 (mulf : (⟨S4x256x16, .f32⟩ : BufTy).Contents (Elt F) → (⟨S4x256x16, .f32⟩ : BufTy).Contents (Elt F) → (⟨S4x256x16, .f32⟩ : BufTy).Contents (Elt F)),
    binary main_v8025 main_v8034 main_v8035 (addf : (⟨S4x256x16, .f32⟩ : BufTy).Contents (Elt F) → (⟨S4x256x16, .f32⟩ : BufTy).Contents (Elt F) → (⟨S4x256x16, .f32⟩ : BufTy).Contents (Elt F)),
    unary main_arg3 main_v8036 ((extractStridedSlice S4x1x16 ![0, 401, 0] · slices_S4x512x16_S4x1x16_0_401_0) : (⟨S4x512x16, .f32⟩ : BufTy).Contents (Elt F) → (⟨S4x1x16, .f32⟩ : BufTy).Contents (Elt F)),
    reshape main_v8036 main_v8037 rfl shapeCasts_S4x1x16_S4x16,
    unary main_v8037 main_v8038 (broadcastInDim S4x1x16 ![0, 2] bcast_S4x16_S4x1x16_0_2 : (⟨S4x16, .f32⟩ : BufTy).Contents (Elt F) → (⟨S4x1x16, .f32⟩ : BufTy).Contents (Elt F)),
    unary main_v8038 main_v8039 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8035 main_v8039 main_v8040 (mulf : (⟨S4x256x16, .f32⟩ : BufTy).Contents (Elt F) → (⟨S4x256x16, .f32⟩ : BufTy).Contents (Elt F) → (⟨S4x256x16, .f32⟩ : BufTy).Contents (Elt F)),
    nullary main_cst_802 (constant S_ .f32 0x00000000#32),
    binary main_v8040 main_cst_802 main_v8041 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_803 (constantI S_ 32 401#32),
    unary main_c_803 main_v8042 (broadcastInDim S1 ![] bcast_S_S1 : (⟨S_, .i32⟩ : BufTy).Contents (Elt F) → (⟨S1, .i32⟩ : BufTy).Contents (Elt F)),
    ternary main_v8023 main_v8042 main_v8041 main_v8043 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps401_ok : (stepOps401 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step401_val (V : Valuation τ sig (Elt Ideal)) :
    after (stepOps401 (F := Ideal)) V (no_index (Proc.devRef .tc main_v8035)) = stepH 401 (by decide) (V (Proc.devRef .tc main_arg0)) (V (Proc.devRef .tc main_v3)) (V (Proc.devRef .tc main_arg2)) (V (Proc.devRef .tc main_v8015))
    ∧ after (stepOps401 (F := Ideal)) V (no_index (Proc.devRef .tc main_v8043)) = stepY 401 (by decide) (V (Proc.devRef .tc main_arg3)) (stepH 401 (by decide) (V (Proc.devRef .tc main_arg0)) (V (Proc.devRef .tc main_v3)) (V (Proc.devRef .tc main_arg2)) (V (Proc.devRef .tc main_v8015))) (V (Proc.devRef .tc main_v8023)) := by
  simp only [stepOps401]
  after_results_simp
  first | exact ⟨rfl, rfl⟩ | fail "value"
/-- Step 402 of the loop: operations 8851 … 8872 of the program. -/
abbrev stepOps402 : List (HloOp τ sig (Elt F)) :=
  [ unary main_v3 main_v8044 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8035 main_v8044 main_v8045 (mulf : (⟨S4x256x16, .f32⟩ : BufTy).Contents (Elt F) → (⟨S4x256x16, .f32⟩ : BufTy).Contents (Elt F) → (⟨S4x256x16, .f32⟩ : BufTy).Contents (Elt F)),
    unary main_arg0 main_v8046 ((extractStridedSlice S4x1x256 ![0, 402, 0] · slices_S4x512x256_S4x1x256_0_402_0) : (⟨S4x512x256, .f32⟩ : BufTy).Contents (Elt F) → (⟨S4x1x256, .f32⟩ : BufTy).Contents (Elt F)),
    reshape main_v8046 main_v8047 rfl shapeCasts_S4x1x256_S4x256,
    unary main_v8047 main_v8048 (broadcastInDim S4x256x1 ![0, 1] bcast_S4x256_S4x256x1_0_1 : (⟨S4x256, .f32⟩ : BufTy).Contents (Elt F) → (⟨S4x256x1, .f32⟩ : BufTy).Contents (Elt F)),
    unary main_arg2 main_v8049 ((extractStridedSlice S4x1x16 ![0, 402, 0] · slices_S4x512x16_S4x1x16_0_402_0) : (⟨S4x512x16, .f32⟩ : BufTy).Contents (Elt F) → (⟨S4x1x16, .f32⟩ : BufTy).Contents (Elt F)),
    reshape main_v8049 main_v8050 rfl shapeCasts_S4x1x16_S4x16,
    unary main_v8050 main_v8051 (broadcastInDim S4x1x16 ![0, 2] bcast_S4x16_S4x1x16_0_2 : (⟨S4x16, .f32⟩ : BufTy).Contents (Elt F) → (⟨S4x1x16, .f32⟩ : BufTy).Contents (Elt F)),
    unary main_v8048 main_v8052 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8051 main_v8053 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8052 main_v8053 main_v8054 (mulf : (⟨S4x256x16, .f32⟩ : BufTy).Contents (Elt F) → (⟨S4x256x16, .f32⟩ : BufTy).Contents (Elt F) → (⟨S4x256x16, .f32⟩ : BufTy).Contents (Elt F)),
    binary main_v8045 main_v8054 main_v8055 (addf : (⟨S4x256x16, .f32⟩ : BufTy).Contents (Elt F) → (⟨S4x256x16, .f32⟩ : BufTy).Contents (Elt F) → (⟨S4x256x16, .f32⟩ : BufTy).Contents (Elt F)),
    unary main_arg3 main_v8056 ((extractStridedSlice S4x1x16 ![0, 402, 0] · slices_S4x512x16_S4x1x16_0_402_0) : (⟨S4x512x16, .f32⟩ : BufTy).Contents (Elt F) → (⟨S4x1x16, .f32⟩ : BufTy).Contents (Elt F)),
    reshape main_v8056 main_v8057 rfl shapeCasts_S4x1x16_S4x16,
    unary main_v8057 main_v8058 (broadcastInDim S4x1x16 ![0, 2] bcast_S4x16_S4x1x16_0_2 : (⟨S4x16, .f32⟩ : BufTy).Contents (Elt F) → (⟨S4x1x16, .f32⟩ : BufTy).Contents (Elt F)),
    unary main_v8058 main_v8059 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8055 main_v8059 main_v8060 (mulf : (⟨S4x256x16, .f32⟩ : BufTy).Contents (Elt F) → (⟨S4x256x16, .f32⟩ : BufTy).Contents (Elt F) → (⟨S4x256x16, .f32⟩ : BufTy).Contents (Elt F)),
    nullary main_cst_804 (constant S_ .f32 0x00000000#32),
    binary main_v8060 main_cst_804 main_v8061 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_805 (constantI S_ 32 402#32),
    unary main_c_805 main_v8062 (broadcastInDim S1 ![] bcast_S_S1 : (⟨S_, .i32⟩ : BufTy).Contents (Elt F) → (⟨S1, .i32⟩ : BufTy).Contents (Elt F)),
    ternary main_v8043 main_v8062 main_v8061 main_v8063 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps402_ok : (stepOps402 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step402_val (V : Valuation τ sig (Elt Ideal)) :
    after (stepOps402 (F := Ideal)) V (no_index (Proc.devRef .tc main_v8055)) = stepH 402 (by decide) (V (Proc.devRef .tc main_arg0)) (V (Proc.devRef .tc main_v3)) (V (Proc.devRef .tc main_arg2)) (V (Proc.devRef .tc main_v8035))
    ∧ after (stepOps402 (F := Ideal)) V (no_index (Proc.devRef .tc main_v8063)) = stepY 402 (by decide) (V (Proc.devRef .tc main_arg3)) (stepH 402 (by decide) (V (Proc.devRef .tc main_arg0)) (V (Proc.devRef .tc main_v3)) (V (Proc.devRef .tc main_arg2)) (V (Proc.devRef .tc main_v8035))) (V (Proc.devRef .tc main_v8043)) := by
  simp only [stepOps402]
  after_results_simp
  first | exact ⟨rfl, rfl⟩ | fail "value"
/-- Step 403 of the loop: operations 8873 … 8894 of the program. -/
abbrev stepOps403 : List (HloOp τ sig (Elt F)) :=
  [ unary main_v3 main_v8064 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8055 main_v8064 main_v8065 (mulf : (⟨S4x256x16, .f32⟩ : BufTy).Contents (Elt F) → (⟨S4x256x16, .f32⟩ : BufTy).Contents (Elt F) → (⟨S4x256x16, .f32⟩ : BufTy).Contents (Elt F)),
    unary main_arg0 main_v8066 ((extractStridedSlice S4x1x256 ![0, 403, 0] · slices_S4x512x256_S4x1x256_0_403_0) : (⟨S4x512x256, .f32⟩ : BufTy).Contents (Elt F) → (⟨S4x1x256, .f32⟩ : BufTy).Contents (Elt F)),
    reshape main_v8066 main_v8067 rfl shapeCasts_S4x1x256_S4x256,
    unary main_v8067 main_v8068 (broadcastInDim S4x256x1 ![0, 1] bcast_S4x256_S4x256x1_0_1 : (⟨S4x256, .f32⟩ : BufTy).Contents (Elt F) → (⟨S4x256x1, .f32⟩ : BufTy).Contents (Elt F)),
    unary main_arg2 main_v8069 ((extractStridedSlice S4x1x16 ![0, 403, 0] · slices_S4x512x16_S4x1x16_0_403_0) : (⟨S4x512x16, .f32⟩ : BufTy).Contents (Elt F) → (⟨S4x1x16, .f32⟩ : BufTy).Contents (Elt F)),
    reshape main_v8069 main_v8070 rfl shapeCasts_S4x1x16_S4x16,
    unary main_v8070 main_v8071 (broadcastInDim S4x1x16 ![0, 2] bcast_S4x16_S4x1x16_0_2 : (⟨S4x16, .f32⟩ : BufTy).Contents (Elt F) → (⟨S4x1x16, .f32⟩ : BufTy).Contents (Elt F)),
    unary main_v8068 main_v8072 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8071 main_v8073 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8072 main_v8073 main_v8074 (mulf : (⟨S4x256x16, .f32⟩ : BufTy).Contents (Elt F) → (⟨S4x256x16, .f32⟩ : BufTy).Contents (Elt F) → (⟨S4x256x16, .f32⟩ : BufTy).Contents (Elt F)),
    binary main_v8065 main_v8074 main_v8075 (addf : (⟨S4x256x16, .f32⟩ : BufTy).Contents (Elt F) → (⟨S4x256x16, .f32⟩ : BufTy).Contents (Elt F) → (⟨S4x256x16, .f32⟩ : BufTy).Contents (Elt F)),
    unary main_arg3 main_v8076 ((extractStridedSlice S4x1x16 ![0, 403, 0] · slices_S4x512x16_S4x1x16_0_403_0) : (⟨S4x512x16, .f32⟩ : BufTy).Contents (Elt F) → (⟨S4x1x16, .f32⟩ : BufTy).Contents (Elt F)),
    reshape main_v8076 main_v8077 rfl shapeCasts_S4x1x16_S4x16,
    unary main_v8077 main_v8078 (broadcastInDim S4x1x16 ![0, 2] bcast_S4x16_S4x1x16_0_2 : (⟨S4x16, .f32⟩ : BufTy).Contents (Elt F) → (⟨S4x1x16, .f32⟩ : BufTy).Contents (Elt F)),
    unary main_v8078 main_v8079 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8075 main_v8079 main_v8080 (mulf : (⟨S4x256x16, .f32⟩ : BufTy).Contents (Elt F) → (⟨S4x256x16, .f32⟩ : BufTy).Contents (Elt F) → (⟨S4x256x16, .f32⟩ : BufTy).Contents (Elt F)),
    nullary main_cst_806 (constant S_ .f32 0x00000000#32),
    binary main_v8080 main_cst_806 main_v8081 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_807 (constantI S_ 32 403#32),
    unary main_c_807 main_v8082 (broadcastInDim S1 ![] bcast_S_S1 : (⟨S_, .i32⟩ : BufTy).Contents (Elt F) → (⟨S1, .i32⟩ : BufTy).Contents (Elt F)),
    ternary main_v8063 main_v8082 main_v8081 main_v8083 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps403_ok : (stepOps403 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step403_val (V : Valuation τ sig (Elt Ideal)) :
    after (stepOps403 (F := Ideal)) V (no_index (Proc.devRef .tc main_v8075)) = stepH 403 (by decide) (V (Proc.devRef .tc main_arg0)) (V (Proc.devRef .tc main_v3)) (V (Proc.devRef .tc main_arg2)) (V (Proc.devRef .tc main_v8055))
    ∧ after (stepOps403 (F := Ideal)) V (no_index (Proc.devRef .tc main_v8083)) = stepY 403 (by decide) (V (Proc.devRef .tc main_arg3)) (stepH 403 (by decide) (V (Proc.devRef .tc main_arg0)) (V (Proc.devRef .tc main_v3)) (V (Proc.devRef .tc main_arg2)) (V (Proc.devRef .tc main_v8055))) (V (Proc.devRef .tc main_v8063)) := by
  simp only [stepOps403]
  after_results_simp
  first | exact ⟨rfl, rfl⟩ | fail "value"
/-- Step 404 of the loop: operations 8895 … 8916 of the program. -/
abbrev stepOps404 : List (HloOp τ sig (Elt F)) :=
  [ unary main_v3 main_v8084 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8075 main_v8084 main_v8085 (mulf : (⟨S4x256x16, .f32⟩ : BufTy).Contents (Elt F) → (⟨S4x256x16, .f32⟩ : BufTy).Contents (Elt F) → (⟨S4x256x16, .f32⟩ : BufTy).Contents (Elt F)),
    unary main_arg0 main_v8086 ((extractStridedSlice S4x1x256 ![0, 404, 0] · slices_S4x512x256_S4x1x256_0_404_0) : (⟨S4x512x256, .f32⟩ : BufTy).Contents (Elt F) → (⟨S4x1x256, .f32⟩ : BufTy).Contents (Elt F)),
    reshape main_v8086 main_v8087 rfl shapeCasts_S4x1x256_S4x256,
    unary main_v8087 main_v8088 (broadcastInDim S4x256x1 ![0, 1] bcast_S4x256_S4x256x1_0_1 : (⟨S4x256, .f32⟩ : BufTy).Contents (Elt F) → (⟨S4x256x1, .f32⟩ : BufTy).Contents (Elt F)),
    unary main_arg2 main_v8089 ((extractStridedSlice S4x1x16 ![0, 404, 0] · slices_S4x512x16_S4x1x16_0_404_0) : (⟨S4x512x16, .f32⟩ : BufTy).Contents (Elt F) → (⟨S4x1x16, .f32⟩ : BufTy).Contents (Elt F)),
    reshape main_v8089 main_v8090 rfl shapeCasts_S4x1x16_S4x16,
    unary main_v8090 main_v8091 (broadcastInDim S4x1x16 ![0, 2] bcast_S4x16_S4x1x16_0_2 : (⟨S4x16, .f32⟩ : BufTy).Contents (Elt F) → (⟨S4x1x16, .f32⟩ : BufTy).Contents (Elt F)),
    unary main_v8088 main_v8092 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8091 main_v8093 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8092 main_v8093 main_v8094 (mulf : (⟨S4x256x16, .f32⟩ : BufTy).Contents (Elt F) → (⟨S4x256x16, .f32⟩ : BufTy).Contents (Elt F) → (⟨S4x256x16, .f32⟩ : BufTy).Contents (Elt F)),
    binary main_v8085 main_v8094 main_v8095 (addf : (⟨S4x256x16, .f32⟩ : BufTy).Contents (Elt F) → (⟨S4x256x16, .f32⟩ : BufTy).Contents (Elt F) → (⟨S4x256x16, .f32⟩ : BufTy).Contents (Elt F)),
    unary main_arg3 main_v8096 ((extractStridedSlice S4x1x16 ![0, 404, 0] · slices_S4x512x16_S4x1x16_0_404_0) : (⟨S4x512x16, .f32⟩ : BufTy).Contents (Elt F) → (⟨S4x1x16, .f32⟩ : BufTy).Contents (Elt F)),
    reshape main_v8096 main_v8097 rfl shapeCasts_S4x1x16_S4x16,
    unary main_v8097 main_v8098 (broadcastInDim S4x1x16 ![0, 2] bcast_S4x16_S4x1x16_0_2 : (⟨S4x16, .f32⟩ : BufTy).Contents (Elt F) → (⟨S4x1x16, .f32⟩ : BufTy).Contents (Elt F)),
    unary main_v8098 main_v8099 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8095 main_v8099 main_v8100 (mulf : (⟨S4x256x16, .f32⟩ : BufTy).Contents (Elt F) → (⟨S4x256x16, .f32⟩ : BufTy).Contents (Elt F) → (⟨S4x256x16, .f32⟩ : BufTy).Contents (Elt F)),
    nullary main_cst_808 (constant S_ .f32 0x00000000#32),
    binary main_v8100 main_cst_808 main_v8101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_809 (constantI S_ 32 404#32),
    unary main_c_809 main_v8102 (broadcastInDim S1 ![] bcast_S_S1 : (⟨S_, .i32⟩ : BufTy).Contents (Elt F) → (⟨S1, .i32⟩ : BufTy).Contents (Elt F)),
    ternary main_v8083 main_v8102 main_v8101 main_v8103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps404_ok : (stepOps404 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step404_val (V : Valuation τ sig (Elt Ideal)) :
    after (stepOps404 (F := Ideal)) V (no_index (Proc.devRef .tc main_v8095)) = stepH 404 (by decide) (V (Proc.devRef .tc main_arg0)) (V (Proc.devRef .tc main_v3)) (V (Proc.devRef .tc main_arg2)) (V (Proc.devRef .tc main_v8075))
    ∧ after (stepOps404 (F := Ideal)) V (no_index (Proc.devRef .tc main_v8103)) = stepY 404 (by decide) (V (Proc.devRef .tc main_arg3)) (stepH 404 (by decide) (V (Proc.devRef .tc main_arg0)) (V (Proc.devRef .tc main_v3)) (V (Proc.devRef .tc main_arg2)) (V (Proc.devRef .tc main_v8075))) (V (Proc.devRef .tc main_v8083)) := by
  simp only [stepOps404]
  after_results_simp
  first | exact ⟨rfl, rfl⟩ | fail "value"
/-- Step 405 of the loop: operations 8917 … 8938 of the program. -/
abbrev stepOps405 : List (HloOp τ sig (Elt F)) :=
  [ unary main_v3 main_v8104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8095 main_v8104 main_v8105 (mulf : (⟨S4x256x16, .f32⟩ : BufTy).Contents (Elt F) → (⟨S4x256x16, .f32⟩ : BufTy).Contents (Elt F) → (⟨S4x256x16, .f32⟩ : BufTy).Contents (Elt F)),
    unary main_arg0 main_v8106 ((extractStridedSlice S4x1x256 ![0, 405, 0] · slices_S4x512x256_S4x1x256_0_405_0) : (⟨S4x512x256, .f32⟩ : BufTy).Contents (Elt F) → (⟨S4x1x256, .f32⟩ : BufTy).Contents (Elt F)),
    reshape main_v8106 main_v8107 rfl shapeCasts_S4x1x256_S4x256,
    unary main_v8107 main_v8108 (broadcastInDim S4x256x1 ![0, 1] bcast_S4x256_S4x256x1_0_1 : (⟨S4x256, .f32⟩ : BufTy).Contents (Elt F) → (⟨S4x256x1, .f32⟩ : BufTy).Contents (Elt F)),
    unary main_arg2 main_v8109 ((extractStridedSlice S4x1x16 ![0, 405, 0] · slices_S4x512x16_S4x1x16_0_405_0) : (⟨S4x512x16, .f32⟩ : BufTy).Contents (Elt F) → (⟨S4x1x16, .f32⟩ : BufTy).Contents (Elt F)),
    reshape main_v8109 main_v8110 rfl shapeCasts_S4x1x16_S4x16,
    unary main_v8110 main_v8111 (broadcastInDim S4x1x16 ![0, 2] bcast_S4x16_S4x1x16_0_2 : (⟨S4x16, .f32⟩ : BufTy).Contents (Elt F) → (⟨S4x1x16, .f32⟩ : BufTy).Contents (Elt F)),
    unary main_v8108 main_v8112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8111 main_v8113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8112 main_v8113 main_v8114 (mulf : (⟨S4x256x16, .f32⟩ : BufTy).Contents (Elt F) → (⟨S4x256x16, .f32⟩ : BufTy).Contents (Elt F) → (⟨S4x256x16, .f32⟩ : BufTy).Contents (Elt F)),
    binary main_v8105 main_v8114 main_v8115 (addf : (⟨S4x256x16, .f32⟩ : BufTy).Contents (Elt F) → (⟨S4x256x16, .f32⟩ : BufTy).Contents (Elt F) → (⟨S4x256x16, .f32⟩ : BufTy).Contents (Elt F)),
    unary main_arg3 main_v8116 ((extractStridedSlice S4x1x16 ![0, 405, 0] · slices_S4x512x16_S4x1x16_0_405_0) : (⟨S4x512x16, .f32⟩ : BufTy).Contents (Elt F) → (⟨S4x1x16, .f32⟩ : BufTy).Contents (Elt F)),
    reshape main_v8116 main_v8117 rfl shapeCasts_S4x1x16_S4x16,
    unary main_v8117 main_v8118 (broadcastInDim S4x1x16 ![0, 2] bcast_S4x16_S4x1x16_0_2 : (⟨S4x16, .f32⟩ : BufTy).Contents (Elt F) → (⟨S4x1x16, .f32⟩ : BufTy).Contents (Elt F)),
    unary main_v8118 main_v8119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8115 main_v8119 main_v8120 (mulf : (⟨S4x256x16, .f32⟩ : BufTy).Contents (Elt F) → (⟨S4x256x16, .f32⟩ : BufTy).Contents (Elt F) → (⟨S4x256x16, .f32⟩ : BufTy).Contents (Elt F)),
    nullary main_cst_810 (constant S_ .f32 0x00000000#32),
    binary main_v8120 main_cst_810 main_v8121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_811 (constantI S_ 32 405#32),
    unary main_c_811 main_v8122 (broadcastInDim S1 ![] bcast_S_S1 : (⟨S_, .i32⟩ : BufTy).Contents (Elt F) → (⟨S1, .i32⟩ : BufTy).Contents (Elt F)),
    ternary main_v8103 main_v8122 main_v8121 main_v8123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps405_ok : (stepOps405 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step405_val (V : Valuation τ sig (Elt Ideal)) :
    after (stepOps405 (F := Ideal)) V (no_index (Proc.devRef .tc main_v8115)) = stepH 405 (by decide) (V (Proc.devRef .tc main_arg0)) (V (Proc.devRef .tc main_v3)) (V (Proc.devRef .tc main_arg2)) (V (Proc.devRef .tc main_v8095))
    ∧ after (stepOps405 (F := Ideal)) V (no_index (Proc.devRef .tc main_v8123)) = stepY 405 (by decide) (V (Proc.devRef .tc main_arg3)) (stepH 405 (by decide) (V (Proc.devRef .tc main_arg0)) (V (Proc.devRef .tc main_v3)) (V (Proc.devRef .tc main_arg2)) (V (Proc.devRef .tc main_v8095))) (V (Proc.devRef .tc main_v8103)) := by
  simp only [stepOps405]
  after_results_simp
  first | exact ⟨rfl, rfl⟩ | fail "value"
/-- Step 406 of the loop: operations 8939 … 8960 of the program. -/
abbrev stepOps406 : List (HloOp τ sig (Elt F)) :=
  [ unary main_v3 main_v8124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8115 main_v8124 main_v8125 (mulf : (⟨S4x256x16, .f32⟩ : BufTy).Contents (Elt F) → (⟨S4x256x16, .f32⟩ : BufTy).Contents (Elt F) → (⟨S4x256x16, .f32⟩ : BufTy).Contents (Elt F)),
    unary main_arg0 main_v8126 ((extractStridedSlice S4x1x256 ![0, 406, 0] · slices_S4x512x256_S4x1x256_0_406_0) : (⟨S4x512x256, .f32⟩ : BufTy).Contents (Elt F) → (⟨S4x1x256, .f32⟩ : BufTy).Contents (Elt F)),
    reshape main_v8126 main_v8127 rfl shapeCasts_S4x1x256_S4x256,
    unary main_v8127 main_v8128 (broadcastInDim S4x256x1 ![0, 1] bcast_S4x256_S4x256x1_0_1 : (⟨S4x256, .f32⟩ : BufTy).Contents (Elt F) → (⟨S4x256x1, .f32⟩ : BufTy).Contents (Elt F)),
    unary main_arg2 main_v8129 ((extractStridedSlice S4x1x16 ![0, 406, 0] · slices_S4x512x16_S4x1x16_0_406_0) : (⟨S4x512x16, .f32⟩ : BufTy).Contents (Elt F) → (⟨S4x1x16, .f32⟩ : BufTy).Contents (Elt F)),
    reshape main_v8129 main_v8130 rfl shapeCasts_S4x1x16_S4x16,
    unary main_v8130 main_v8131 (broadcastInDim S4x1x16 ![0, 2] bcast_S4x16_S4x1x16_0_2 : (⟨S4x16, .f32⟩ : BufTy).Contents (Elt F) → (⟨S4x1x16, .f32⟩ : BufTy).Contents (Elt F)),
    unary main_v8128 main_v8132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8131 main_v8133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8132 main_v8133 main_v8134 (mulf : (⟨S4x256x16, .f32⟩ : BufTy).Contents (Elt F) → (⟨S4x256x16, .f32⟩ : BufTy).Contents (Elt F) → (⟨S4x256x16, .f32⟩ : BufTy).Contents (Elt F)),
    binary main_v8125 main_v8134 main_v8135 (addf : (⟨S4x256x16, .f32⟩ : BufTy).Contents (Elt F) → (⟨S4x256x16, .f32⟩ : BufTy).Contents (Elt F) → (⟨S4x256x16, .f32⟩ : BufTy).Contents (Elt F)),
    unary main_arg3 main_v8136 ((extractStridedSlice S4x1x16 ![0, 406, 0] · slices_S4x512x16_S4x1x16_0_406_0) : (⟨S4x512x16, .f32⟩ : BufTy).Contents (Elt F) → (⟨S4x1x16, .f32⟩ : BufTy).Contents (Elt F)),
    reshape main_v8136 main_v8137 rfl shapeCasts_S4x1x16_S4x16,
    unary main_v8137 main_v8138 (broadcastInDim S4x1x16 ![0, 2] bcast_S4x16_S4x1x16_0_2 : (⟨S4x16, .f32⟩ : BufTy).Contents (Elt F) → (⟨S4x1x16, .f32⟩ : BufTy).Contents (Elt F)),
    unary main_v8138 main_v8139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8135 main_v8139 main_v8140 (mulf : (⟨S4x256x16, .f32⟩ : BufTy).Contents (Elt F) → (⟨S4x256x16, .f32⟩ : BufTy).Contents (Elt F) → (⟨S4x256x16, .f32⟩ : BufTy).Contents (Elt F)),
    nullary main_cst_812 (constant S_ .f32 0x00000000#32),
    binary main_v8140 main_cst_812 main_v8141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_813 (constantI S_ 32 406#32),
    unary main_c_813 main_v8142 (broadcastInDim S1 ![] bcast_S_S1 : (⟨S_, .i32⟩ : BufTy).Contents (Elt F) → (⟨S1, .i32⟩ : BufTy).Contents (Elt F)),
    ternary main_v8123 main_v8142 main_v8141 main_v8143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps406_ok : (stepOps406 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step406_val (V : Valuation τ sig (Elt Ideal)) :
    after (stepOps406 (F := Ideal)) V (no_index (Proc.devRef .tc main_v8135)) = stepH 406 (by decide) (V (Proc.devRef .tc main_arg0)) (V (Proc.devRef .tc main_v3)) (V (Proc.devRef .tc main_arg2)) (V (Proc.devRef .tc main_v8115))
    ∧ after (stepOps406 (F := Ideal)) V (no_index (Proc.devRef .tc main_v8143)) = stepY 406 (by decide) (V (Proc.devRef .tc main_arg3)) (stepH 406 (by decide) (V (Proc.devRef .tc main_arg0)) (V (Proc.devRef .tc main_v3)) (V (Proc.devRef .tc main_arg2)) (V (Proc.devRef .tc main_v8115))) (V (Proc.devRef .tc main_v8123)) := by
  simp only [stepOps406]
  after_results_simp
  first | exact ⟨rfl, rfl⟩ | fail "value"
/-- Step 407 of the loop: operations 8961 … 8982 of the program. -/
abbrev stepOps407 : List (HloOp τ sig (Elt F)) :=
  [ unary main_v3 main_v8144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8135 main_v8144 main_v8145 (mulf : (⟨S4x256x16, .f32⟩ : BufTy).Contents (Elt F) → (⟨S4x256x16, .f32⟩ : BufTy).Contents (Elt F) → (⟨S4x256x16, .f32⟩ : BufTy).Contents (Elt F)),
    unary main_arg0 main_v8146 ((extractStridedSlice S4x1x256 ![0, 407, 0] · slices_S4x512x256_S4x1x256_0_407_0) : (⟨S4x512x256, .f32⟩ : BufTy).Contents (Elt F) → (⟨S4x1x256, .f32⟩ : BufTy).Contents (Elt F)),
    reshape main_v8146 main_v8147 rfl shapeCasts_S4x1x256_S4x256,
    unary main_v8147 main_v8148 (broadcastInDim S4x256x1 ![0, 1] bcast_S4x256_S4x256x1_0_1 : (⟨S4x256, .f32⟩ : BufTy).Contents (Elt F) → (⟨S4x256x1, .f32⟩ : BufTy).Contents (Elt F)),
    unary main_arg2 main_v8149 ((extractStridedSlice S4x1x16 ![0, 407, 0] · slices_S4x512x16_S4x1x16_0_407_0) : (⟨S4x512x16, .f32⟩ : BufTy).Contents (Elt F) → (⟨S4x1x16, .f32⟩ : BufTy).Contents (Elt F)),
    reshape main_v8149 main_v8150 rfl shapeCasts_S4x1x16_S4x16,
    unary main_v8150 main_v8151 (broadcastInDim S4x1x16 ![0, 2] bcast_S4x16_S4x1x16_0_2 : (⟨S4x16, .f32⟩ : BufTy).Contents (Elt F) → (⟨S4x1x16, .f32⟩ : BufTy).Contents (Elt F)),
    unary main_v8148 main_v8152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8151 main_v8153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8152 main_v8153 main_v8154 (mulf : (⟨S4x256x16, .f32⟩ : BufTy).Contents (Elt F) → (⟨S4x256x16, .f32⟩ : BufTy).Contents (Elt F) → (⟨S4x256x16, .f32⟩ : BufTy).Contents (Elt F)),
    binary main_v8145 main_v8154 main_v8155 (addf : (⟨S4x256x16, .f32⟩ : BufTy).Contents (Elt F) → (⟨S4x256x16, .f32⟩ : BufTy).Contents (Elt F) → (⟨S4x256x16, .f32⟩ : BufTy).Contents (Elt F)),
    unary main_arg3 main_v8156 ((extractStridedSlice S4x1x16 ![0, 407, 0] · slices_S4x512x16_S4x1x16_0_407_0) : (⟨S4x512x16, .f32⟩ : BufTy).Contents (Elt F) → (⟨S4x1x16, .f32⟩ : BufTy).Contents (Elt F)),
    reshape main_v8156 main_v8157 rfl shapeCasts_S4x1x16_S4x16,
    unary main_v8157 main_v8158 (broadcastInDim S4x1x16 ![0, 2] bcast_S4x16_S4x1x16_0_2 : (⟨S4x16, .f32⟩ : BufTy).Contents (Elt F) → (⟨S4x1x16, .f32⟩ : BufTy).Contents (Elt F)),
    unary main_v8158 main_v8159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8155 main_v8159 main_v8160 (mulf : (⟨S4x256x16, .f32⟩ : BufTy).Contents (Elt F) → (⟨S4x256x16, .f32⟩ : BufTy).Contents (Elt F) → (⟨S4x256x16, .f32⟩ : BufTy).Contents (Elt F)),
    nullary main_cst_814 (constant S_ .f32 0x00000000#32),
    binary main_v8160 main_cst_814 main_v8161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_815 (constantI S_ 32 407#32),
    unary main_c_815 main_v8162 (broadcastInDim S1 ![] bcast_S_S1 : (⟨S_, .i32⟩ : BufTy).Contents (Elt F) → (⟨S1, .i32⟩ : BufTy).Contents (Elt F)),
    ternary main_v8143 main_v8162 main_v8161 main_v8163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps407_ok : (stepOps407 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step407_val (V : Valuation τ sig (Elt Ideal)) :
    after (stepOps407 (F := Ideal)) V (no_index (Proc.devRef .tc main_v8155)) = stepH 407 (by decide) (V (Proc.devRef .tc main_arg0)) (V (Proc.devRef .tc main_v3)) (V (Proc.devRef .tc main_arg2)) (V (Proc.devRef .tc main_v8135))
    ∧ after (stepOps407 (F := Ideal)) V (no_index (Proc.devRef .tc main_v8163)) = stepY 407 (by decide) (V (Proc.devRef .tc main_arg3)) (stepH 407 (by decide) (V (Proc.devRef .tc main_arg0)) (V (Proc.devRef .tc main_v3)) (V (Proc.devRef .tc main_arg2)) (V (Proc.devRef .tc main_v8135))) (V (Proc.devRef .tc main_v8143)) := by
  simp only [stepOps407]
  after_results_simp
  first | exact ⟨rfl, rfl⟩ | fail "value"
/-- Step 408 of the loop: operations 8983 … 9004 of the program. -/
abbrev stepOps408 : List (HloOp τ sig (Elt F)) :=
  [ unary main_v3 main_v8164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8155 main_v8164 main_v8165 (mulf : (⟨S4x256x16, .f32⟩ : BufTy).Contents (Elt F) → (⟨S4x256x16, .f32⟩ : BufTy).Contents (Elt F) → (⟨S4x256x16, .f32⟩ : BufTy).Contents (Elt F)),
    unary main_arg0 main_v8166 ((extractStridedSlice S4x1x256 ![0, 408, 0] · slices_S4x512x256_S4x1x256_0_408_0) : (⟨S4x512x256, .f32⟩ : BufTy).Contents (Elt F) → (⟨S4x1x256, .f32⟩ : BufTy).Contents (Elt F)),
    reshape main_v8166 main_v8167 rfl shapeCasts_S4x1x256_S4x256,
    unary main_v8167 main_v8168 (broadcastInDim S4x256x1 ![0, 1] bcast_S4x256_S4x256x1_0_1 : (⟨S4x256, .f32⟩ : BufTy).Contents (Elt F) → (⟨S4x256x1, .f32⟩ : BufTy).Contents (Elt F)),
    unary main_arg2 main_v8169 ((extractStridedSlice S4x1x16 ![0, 408, 0] · slices_S4x512x16_S4x1x16_0_408_0) : (⟨S4x512x16, .f32⟩ : BufTy).Contents (Elt F) → (⟨S4x1x16, .f32⟩ : BufTy).Contents (Elt F)),
    reshape main_v8169 main_v8170 rfl shapeCasts_S4x1x16_S4x16,
    unary main_v8170 main_v8171 (broadcastInDim S4x1x16 ![0, 2] bcast_S4x16_S4x1x16_0_2 : (⟨S4x16, .f32⟩ : BufTy).Contents (Elt F) → (⟨S4x1x16, .f32⟩ : BufTy).Contents (Elt F)),
    unary main_v8168 main_v8172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8171 main_v8173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8172 main_v8173 main_v8174 (mulf : (⟨S4x256x16, .f32⟩ : BufTy).Contents (Elt F) → (⟨S4x256x16, .f32⟩ : BufTy).Contents (Elt F) → (⟨S4x256x16, .f32⟩ : BufTy).Contents (Elt F)),
    binary main_v8165 main_v8174 main_v8175 (addf : (⟨S4x256x16, .f32⟩ : BufTy).Contents (Elt F) → (⟨S4x256x16, .f32⟩ : BufTy).Contents (Elt F) → (⟨S4x256x16, .f32⟩ : BufTy).Contents (Elt F)),
    unary main_arg3 main_v8176 ((extractStridedSlice S4x1x16 ![0, 408, 0] · slices_S4x512x16_S4x1x16_0_408_0) : (⟨S4x512x16, .f32⟩ : BufTy).Contents (Elt F) → (⟨S4x1x16, .f32⟩ : BufTy).Contents (Elt F)),
    reshape main_v8176 main_v8177 rfl shapeCasts_S4x1x16_S4x16,
    unary main_v8177 main_v8178 (broadcastInDim S4x1x16 ![0, 2] bcast_S4x16_S4x1x16_0_2 : (⟨S4x16, .f32⟩ : BufTy).Contents (Elt F) → (⟨S4x1x16, .f32⟩ : BufTy).Contents (Elt F)),
    unary main_v8178 main_v8179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8175 main_v8179 main_v8180 (mulf : (⟨S4x256x16, .f32⟩ : BufTy).Contents (Elt F) → (⟨S4x256x16, .f32⟩ : BufTy).Contents (Elt F) → (⟨S4x256x16, .f32⟩ : BufTy).Contents (Elt F)),
    nullary main_cst_816 (constant S_ .f32 0x00000000#32),
    binary main_v8180 main_cst_816 main_v8181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_817 (constantI S_ 32 408#32),
    unary main_c_817 main_v8182 (broadcastInDim S1 ![] bcast_S_S1 : (⟨S_, .i32⟩ : BufTy).Contents (Elt F) → (⟨S1, .i32⟩ : BufTy).Contents (Elt F)),
    ternary main_v8163 main_v8182 main_v8181 main_v8183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps408_ok : (stepOps408 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step408_val (V : Valuation τ sig (Elt Ideal)) :
    after (stepOps408 (F := Ideal)) V (no_index (Proc.devRef .tc main_v8175)) = stepH 408 (by decide) (V (Proc.devRef .tc main_arg0)) (V (Proc.devRef .tc main_v3)) (V (Proc.devRef .tc main_arg2)) (V (Proc.devRef .tc main_v8155))
    ∧ after (stepOps408 (F := Ideal)) V (no_index (Proc.devRef .tc main_v8183)) = stepY 408 (by decide) (V (Proc.devRef .tc main_arg3)) (stepH 408 (by decide) (V (Proc.devRef .tc main_arg0)) (V (Proc.devRef .tc main_v3)) (V (Proc.devRef .tc main_arg2)) (V (Proc.devRef .tc main_v8155))) (V (Proc.devRef .tc main_v8163)) := by
  simp only [stepOps408]
  after_results_simp
  first | exact ⟨rfl, rfl⟩ | fail "value"
/-- Step 409 of the loop: operations 9005 … 9026 of the program. -/
abbrev stepOps409 : List (HloOp τ sig (Elt F)) :=
  [ unary main_v3 main_v8184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8175 main_v8184 main_v8185 (mulf : (⟨S4x256x16, .f32⟩ : BufTy).Contents (Elt F) → (⟨S4x256x16, .f32⟩ : BufTy).Contents (Elt F) → (⟨S4x256x16, .f32⟩ : BufTy).Contents (Elt F)),
    unary main_arg0 main_v8186 ((extractStridedSlice S4x1x256 ![0, 409, 0] · slices_S4x512x256_S4x1x256_0_409_0) : (⟨S4x512x256, .f32⟩ : BufTy).Contents (Elt F) → (⟨S4x1x256, .f32⟩ : BufTy).Contents (Elt F)),
    reshape main_v8186 main_v8187 rfl shapeCasts_S4x1x256_S4x256,
    unary main_v8187 main_v8188 (broadcastInDim S4x256x1 ![0, 1] bcast_S4x256_S4x256x1_0_1 : (⟨S4x256, .f32⟩ : BufTy).Contents (Elt F) → (⟨S4x256x1, .f32⟩ : BufTy).Contents (Elt F)),
    unary main_arg2 main_v8189 ((extractStridedSlice S4x1x16 ![0, 409, 0] · slices_S4x512x16_S4x1x16_0_409_0) : (⟨S4x512x16, .f32⟩ : BufTy).Contents (Elt F) → (⟨S4x1x16, .f32⟩ : BufTy).Contents (Elt F)),
    reshape main_v8189 main_v8190 rfl shapeCasts_S4x1x16_S4x16,
    unary main_v8190 main_v8191 (broadcastInDim S4x1x16 ![0, 2] bcast_S4x16_S4x1x16_0_2 : (⟨S4x16, .f32⟩ : BufTy).Contents (Elt F) → (⟨S4x1x16, .f32⟩ : BufTy).Contents (Elt F)),
    unary main_v8188 main_v8192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8191 main_v8193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8192 main_v8193 main_v8194 (mulf : (⟨S4x256x16, .f32⟩ : BufTy).Contents (Elt F) → (⟨S4x256x16, .f32⟩ : BufTy).Contents (Elt F) → (⟨S4x256x16, .f32⟩ : BufTy).Contents (Elt F)),
    binary main_v8185 main_v8194 main_v8195 (addf : (⟨S4x256x16, .f32⟩ : BufTy).Contents (Elt F) → (⟨S4x256x16, .f32⟩ : BufTy).Contents (Elt F) → (⟨S4x256x16, .f32⟩ : BufTy).Contents (Elt F)),
    unary main_arg3 main_v8196 ((extractStridedSlice S4x1x16 ![0, 409, 0] · slices_S4x512x16_S4x1x16_0_409_0) : (⟨S4x512x16, .f32⟩ : BufTy).Contents (Elt F) → (⟨S4x1x16, .f32⟩ : BufTy).Contents (Elt F)),
    reshape main_v8196 main_v8197 rfl shapeCasts_S4x1x16_S4x16,
    unary main_v8197 main_v8198 (broadcastInDim S4x1x16 ![0, 2] bcast_S4x16_S4x1x16_0_2 : (⟨S4x16, .f32⟩ : BufTy).Contents (Elt F) → (⟨S4x1x16, .f32⟩ : BufTy).Contents (Elt F)),
    unary main_v8198 main_v8199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8195 main_v8199 main_v8200 (mulf : (⟨S4x256x16, .f32⟩ : BufTy).Contents (Elt F) → (⟨S4x256x16, .f32⟩ : BufTy).Contents (Elt F) → (⟨S4x256x16, .f32⟩ : BufTy).Contents (Elt F)),
    nullary main_cst_818 (constant S_ .f32 0x00000000#32),
    binary main_v8200 main_cst_818 main_v8201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_819 (constantI S_ 32 409#32),
    unary main_c_819 main_v8202 (broadcastInDim S1 ![] bcast_S_S1 : (⟨S_, .i32⟩ : BufTy).Contents (Elt F) → (⟨S1, .i32⟩ : BufTy).Contents (Elt F)),
    ternary main_v8183 main_v8202 main_v8201 main_v8203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps409_ok : (stepOps409 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step409_val (V : Valuation τ sig (Elt Ideal)) :
    after (stepOps409 (F := Ideal)) V (no_index (Proc.devRef .tc main_v8195)) = stepH 409 (by decide) (V (Proc.devRef .tc main_arg0)) (V (Proc.devRef .tc main_v3)) (V (Proc.devRef .tc main_arg2)) (V (Proc.devRef .tc main_v8175))
    ∧ after (stepOps409 (F := Ideal)) V (no_index (Proc.devRef .tc main_v8203)) = stepY 409 (by decide) (V (Proc.devRef .tc main_arg3)) (stepH 409 (by decide) (V (Proc.devRef .tc main_arg0)) (V (Proc.devRef .tc main_v3)) (V (Proc.devRef .tc main_arg2)) (V (Proc.devRef .tc main_v8175))) (V (Proc.devRef .tc main_v8183)) := by
  simp only [stepOps409]
  after_results_simp
  first | exact ⟨rfl, rfl⟩ | fail "value"
/-- Step 410 of the loop: operations 9027 … 9048 of the program. -/
abbrev stepOps410 : List (HloOp τ sig (Elt F)) :=
  [ unary main_v3 main_v8204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8195 main_v8204 main_v8205 (mulf : (⟨S4x256x16, .f32⟩ : BufTy).Contents (Elt F) → (⟨S4x256x16, .f32⟩ : BufTy).Contents (Elt F) → (⟨S4x256x16, .f32⟩ : BufTy).Contents (Elt F)),
    unary main_arg0 main_v8206 ((extractStridedSlice S4x1x256 ![0, 410, 0] · slices_S4x512x256_S4x1x256_0_410_0) : (⟨S4x512x256, .f32⟩ : BufTy).Contents (Elt F) → (⟨S4x1x256, .f32⟩ : BufTy).Contents (Elt F)),
    reshape main_v8206 main_v8207 rfl shapeCasts_S4x1x256_S4x256,
    unary main_v8207 main_v8208 (broadcastInDim S4x256x1 ![0, 1] bcast_S4x256_S4x256x1_0_1 : (⟨S4x256, .f32⟩ : BufTy).Contents (Elt F) → (⟨S4x256x1, .f32⟩ : BufTy).Contents (Elt F)),
    unary main_arg2 main_v8209 ((extractStridedSlice S4x1x16 ![0, 410, 0] · slices_S4x512x16_S4x1x16_0_410_0) : (⟨S4x512x16, .f32⟩ : BufTy).Contents (Elt F) → (⟨S4x1x16, .f32⟩ : BufTy).Contents (Elt F)),
    reshape main_v8209 main_v8210 rfl shapeCasts_S4x1x16_S4x16,
    unary main_v8210 main_v8211 (broadcastInDim S4x1x16 ![0, 2] bcast_S4x16_S4x1x16_0_2 : (⟨S4x16, .f32⟩ : BufTy).Contents (Elt F) → (⟨S4x1x16, .f32⟩ : BufTy).Contents (Elt F)),
    unary main_v8208 main_v8212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8211 main_v8213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8212 main_v8213 main_v8214 (mulf : (⟨S4x256x16, .f32⟩ : BufTy).Contents (Elt F) → (⟨S4x256x16, .f32⟩ : BufTy).Contents (Elt F) → (⟨S4x256x16, .f32⟩ : BufTy).Contents (Elt F)),
    binary main_v8205 main_v8214 main_v8215 (addf : (⟨S4x256x16, .f32⟩ : BufTy).Contents (Elt F) → (⟨S4x256x16, .f32⟩ : BufTy).Contents (Elt F) → (⟨S4x256x16, .f32⟩ : BufTy).Contents (Elt F)),
    unary main_arg3 main_v8216 ((extractStridedSlice S4x1x16 ![0, 410, 0] · slices_S4x512x16_S4x1x16_0_410_0) : (⟨S4x512x16, .f32⟩ : BufTy).Contents (Elt F) → (⟨S4x1x16, .f32⟩ : BufTy).Contents (Elt F)),
    reshape main_v8216 main_v8217 rfl shapeCasts_S4x1x16_S4x16,
    unary main_v8217 main_v8218 (broadcastInDim S4x1x16 ![0, 2] bcast_S4x16_S4x1x16_0_2 : (⟨S4x16, .f32⟩ : BufTy).Contents (Elt F) → (⟨S4x1x16, .f32⟩ : BufTy).Contents (Elt F)),
    unary main_v8218 main_v8219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8215 main_v8219 main_v8220 (mulf : (⟨S4x256x16, .f32⟩ : BufTy).Contents (Elt F) → (⟨S4x256x16, .f32⟩ : BufTy).Contents (Elt F) → (⟨S4x256x16, .f32⟩ : BufTy).Contents (Elt F)),
    nullary main_cst_820 (constant S_ .f32 0x00000000#32),
    binary main_v8220 main_cst_820 main_v8221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_821 (constantI S_ 32 410#32),
    unary main_c_821 main_v8222 (broadcastInDim S1 ![] bcast_S_S1 : (⟨S_, .i32⟩ : BufTy).Contents (Elt F) → (⟨S1, .i32⟩ : BufTy).Contents (Elt F)),
    ternary main_v8203 main_v8222 main_v8221 main_v8223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps410_ok : (stepOps410 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step410_val (V : Valuation τ sig (Elt Ideal)) :
    after (stepOps410 (F := Ideal)) V (no_index (Proc.devRef .tc main_v8215)) = stepH 410 (by decide) (V (Proc.devRef .tc main_arg0)) (V (Proc.devRef .tc main_v3)) (V (Proc.devRef .tc main_arg2)) (V (Proc.devRef .tc main_v8195))
    ∧ after (stepOps410 (F := Ideal)) V (no_index (Proc.devRef .tc main_v8223)) = stepY 410 (by decide) (V (Proc.devRef .tc main_arg3)) (stepH 410 (by decide) (V (Proc.devRef .tc main_arg0)) (V (Proc.devRef .tc main_v3)) (V (Proc.devRef .tc main_arg2)) (V (Proc.devRef .tc main_v8195))) (V (Proc.devRef .tc main_v8203)) := by
  simp only [stepOps410]
  after_results_simp
  first | exact ⟨rfl, rfl⟩ | fail "value"
/-- Step 411 of the loop: operations 9049 … 9070 of the program. -/
abbrev stepOps411 : List (HloOp τ sig (Elt F)) :=
  [ unary main_v3 main_v8224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8215 main_v8224 main_v8225 (mulf : (⟨S4x256x16, .f32⟩ : BufTy).Contents (Elt F) → (⟨S4x256x16, .f32⟩ : BufTy).Contents (Elt F) → (⟨S4x256x16, .f32⟩ : BufTy).Contents (Elt F)),
    unary main_arg0 main_v8226 ((extractStridedSlice S4x1x256 ![0, 411, 0] · slices_S4x512x256_S4x1x256_0_411_0) : (⟨S4x512x256, .f32⟩ : BufTy).Contents (Elt F) → (⟨S4x1x256, .f32⟩ : BufTy).Contents (Elt F)),
    reshape main_v8226 main_v8227 rfl shapeCasts_S4x1x256_S4x256,
    unary main_v8227 main_v8228 (broadcastInDim S4x256x1 ![0, 1] bcast_S4x256_S4x256x1_0_1 : (⟨S4x256, .f32⟩ : BufTy).Contents (Elt F) → (⟨S4x256x1, .f32⟩ : BufTy).Contents (Elt F)),
    unary main_arg2 main_v8229 ((extractStridedSlice S4x1x16 ![0, 411, 0] · slices_S4x512x16_S4x1x16_0_411_0) : (⟨S4x512x16, .f32⟩ : BufTy).Contents (Elt F) → (⟨S4x1x16, .f32⟩ : BufTy).Contents (Elt F)),
    reshape main_v8229 main_v8230 rfl shapeCasts_S4x1x16_S4x16,
    unary main_v8230 main_v8231 (broadcastInDim S4x1x16 ![0, 2] bcast_S4x16_S4x1x16_0_2 : (⟨S4x16, .f32⟩ : BufTy).Contents (Elt F) → (⟨S4x1x16, .f32⟩ : BufTy).Contents (Elt F)),
    unary main_v8228 main_v8232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8231 main_v8233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8232 main_v8233 main_v8234 (mulf : (⟨S4x256x16, .f32⟩ : BufTy).Contents (Elt F) → (⟨S4x256x16, .f32⟩ : BufTy).Contents (Elt F) → (⟨S4x256x16, .f32⟩ : BufTy).Contents (Elt F)),
    binary main_v8225 main_v8234 main_v8235 (addf : (⟨S4x256x16, .f32⟩ : BufTy).Contents (Elt F) → (⟨S4x256x16, .f32⟩ : BufTy).Contents (Elt F) → (⟨S4x256x16, .f32⟩ : BufTy).Contents (Elt F)),
    unary main_arg3 main_v8236 ((extractStridedSlice S4x1x16 ![0, 411, 0] · slices_S4x512x16_S4x1x16_0_411_0) : (⟨S4x512x16, .f32⟩ : BufTy).Contents (Elt F) → (⟨S4x1x16, .f32⟩ : BufTy).Contents (Elt F)),
    reshape main_v8236 main_v8237 rfl shapeCasts_S4x1x16_S4x16,
    unary main_v8237 main_v8238 (broadcastInDim S4x1x16 ![0, 2] bcast_S4x16_S4x1x16_0_2 : (⟨S4x16, .f32⟩ : BufTy).Contents (Elt F) → (⟨S4x1x16, .f32⟩ : BufTy).Contents (Elt F)),
    unary main_v8238 main_v8239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8235 main_v8239 main_v8240 (mulf : (⟨S4x256x16, .f32⟩ : BufTy).Contents (Elt F) → (⟨S4x256x16, .f32⟩ : BufTy).Contents (Elt F) → (⟨S4x256x16, .f32⟩ : BufTy).Contents (Elt F)),
    nullary main_cst_822 (constant S_ .f32 0x00000000#32),
    binary main_v8240 main_cst_822 main_v8241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_823 (constantI S_ 32 411#32),
    unary main_c_823 main_v8242 (broadcastInDim S1 ![] bcast_S_S1 : (⟨S_, .i32⟩ : BufTy).Contents (Elt F) → (⟨S1, .i32⟩ : BufTy).Contents (Elt F)),
    ternary main_v8223 main_v8242 main_v8241 main_v8243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps411_ok : (stepOps411 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step411_val (V : Valuation τ sig (Elt Ideal)) :
    after (stepOps411 (F := Ideal)) V (no_index (Proc.devRef .tc main_v8235)) = stepH 411 (by decide) (V (Proc.devRef .tc main_arg0)) (V (Proc.devRef .tc main_v3)) (V (Proc.devRef .tc main_arg2)) (V (Proc.devRef .tc main_v8215))
    ∧ after (stepOps411 (F := Ideal)) V (no_index (Proc.devRef .tc main_v8243)) = stepY 411 (by decide) (V (Proc.devRef .tc main_arg3)) (stepH 411 (by decide) (V (Proc.devRef .tc main_arg0)) (V (Proc.devRef .tc main_v3)) (V (Proc.devRef .tc main_arg2)) (V (Proc.devRef .tc main_v8215))) (V (Proc.devRef .tc main_v8223)) := by
  simp only [stepOps411]
  after_results_simp
  first | exact ⟨rfl, rfl⟩ | fail "value"
/-- Step 412 of the loop: operations 9071 … 9092 of the program. -/
abbrev stepOps412 : List (HloOp τ sig (Elt F)) :=
  [ unary main_v3 main_v8244 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8235 main_v8244 main_v8245 (mulf : (⟨S4x256x16, .f32⟩ : BufTy).Contents (Elt F) → (⟨S4x256x16, .f32⟩ : BufTy).Contents (Elt F) → (⟨S4x256x16, .f32⟩ : BufTy).Contents (Elt F)),
    unary main_arg0 main_v8246 ((extractStridedSlice S4x1x256 ![0, 412, 0] · slices_S4x512x256_S4x1x256_0_412_0) : (⟨S4x512x256, .f32⟩ : BufTy).Contents (Elt F) → (⟨S4x1x256, .f32⟩ : BufTy).Contents (Elt F)),
    reshape main_v8246 main_v8247 rfl shapeCasts_S4x1x256_S4x256,
    unary main_v8247 main_v8248 (broadcastInDim S4x256x1 ![0, 1] bcast_S4x256_S4x256x1_0_1 : (⟨S4x256, .f32⟩ : BufTy).Contents (Elt F) → (⟨S4x256x1, .f32⟩ : BufTy).Contents (Elt F)),
    unary main_arg2 main_v8249 ((extractStridedSlice S4x1x16 ![0, 412, 0] · slices_S4x512x16_S4x1x16_0_412_0) : (⟨S4x512x16, .f32⟩ : BufTy).Contents (Elt F) → (⟨S4x1x16, .f32⟩ : BufTy).Contents (Elt F)),
    reshape main_v8249 main_v8250 rfl shapeCasts_S4x1x16_S4x16,
    unary main_v8250 main_v8251 (broadcastInDim S4x1x16 ![0, 2] bcast_S4x16_S4x1x16_0_2 : (⟨S4x16, .f32⟩ : BufTy).Contents (Elt F) → (⟨S4x1x16, .f32⟩ : BufTy).Contents (Elt F)),
    unary main_v8248 main_v8252 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8251 main_v8253 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8252 main_v8253 main_v8254 (mulf : (⟨S4x256x16, .f32⟩ : BufTy).Contents (Elt F) → (⟨S4x256x16, .f32⟩ : BufTy).Contents (Elt F) → (⟨S4x256x16, .f32⟩ : BufTy).Contents (Elt F)),
    binary main_v8245 main_v8254 main_v8255 (addf : (⟨S4x256x16, .f32⟩ : BufTy).Contents (Elt F) → (⟨S4x256x16, .f32⟩ : BufTy).Contents (Elt F) → (⟨S4x256x16, .f32⟩ : BufTy).Contents (Elt F)),
    unary main_arg3 main_v8256 ((extractStridedSlice S4x1x16 ![0, 412, 0] · slices_S4x512x16_S4x1x16_0_412_0) : (⟨S4x512x16, .f32⟩ : BufTy).Contents (Elt F) → (⟨S4x1x16, .f32⟩ : BufTy).Contents (Elt F)),
    reshape main_v8256 main_v8257 rfl shapeCasts_S4x1x16_S4x16,
    unary main_v8257 main_v8258 (broadcastInDim S4x1x16 ![0, 2] bcast_S4x16_S4x1x16_0_2 : (⟨S4x16, .f32⟩ : BufTy).Contents (Elt F) → (⟨S4x1x16, .f32⟩ : BufTy).Contents (Elt F)),
    unary main_v8258 main_v8259 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8255 main_v8259 main_v8260 (mulf : (⟨S4x256x16, .f32⟩ : BufTy).Contents (Elt F) → (⟨S4x256x16, .f32⟩ : BufTy).Contents (Elt F) → (⟨S4x256x16, .f32⟩ : BufTy).Contents (Elt F)),
    nullary main_cst_824 (constant S_ .f32 0x00000000#32),
    binary main_v8260 main_cst_824 main_v8261 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_825 (constantI S_ 32 412#32),
    unary main_c_825 main_v8262 (broadcastInDim S1 ![] bcast_S_S1 : (⟨S_, .i32⟩ : BufTy).Contents (Elt F) → (⟨S1, .i32⟩ : BufTy).Contents (Elt F)),
    ternary main_v8243 main_v8262 main_v8261 main_v8263 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps412_ok : (stepOps412 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step412_val (V : Valuation τ sig (Elt Ideal)) :
    after (stepOps412 (F := Ideal)) V (no_index (Proc.devRef .tc main_v8255)) = stepH 412 (by decide) (V (Proc.devRef .tc main_arg0)) (V (Proc.devRef .tc main_v3)) (V (Proc.devRef .tc main_arg2)) (V (Proc.devRef .tc main_v8235))
    ∧ after (stepOps412 (F := Ideal)) V (no_index (Proc.devRef .tc main_v8263)) = stepY 412 (by decide) (V (Proc.devRef .tc main_arg3)) (stepH 412 (by decide) (V (Proc.devRef .tc main_arg0)) (V (Proc.devRef .tc main_v3)) (V (Proc.devRef .tc main_arg2)) (V (Proc.devRef .tc main_v8235))) (V (Proc.devRef .tc main_v8243)) := by
  simp only [stepOps412]
  after_results_simp
  first | exact ⟨rfl, rfl⟩ | fail "value"
/-- Step 413 of the loop: operations 9093 … 9114 of the program. -/
abbrev stepOps413 : List (HloOp τ sig (Elt F)) :=
  [ unary main_v3 main_v8264 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8255 main_v8264 main_v8265 (mulf : (⟨S4x256x16, .f32⟩ : BufTy).Contents (Elt F) → (⟨S4x256x16, .f32⟩ : BufTy).Contents (Elt F) → (⟨S4x256x16, .f32⟩ : BufTy).Contents (Elt F)),
    unary main_arg0 main_v8266 ((extractStridedSlice S4x1x256 ![0, 413, 0] · slices_S4x512x256_S4x1x256_0_413_0) : (⟨S4x512x256, .f32⟩ : BufTy).Contents (Elt F) → (⟨S4x1x256, .f32⟩ : BufTy).Contents (Elt F)),
    reshape main_v8266 main_v8267 rfl shapeCasts_S4x1x256_S4x256,
    unary main_v8267 main_v8268 (broadcastInDim S4x256x1 ![0, 1] bcast_S4x256_S4x256x1_0_1 : (⟨S4x256, .f32⟩ : BufTy).Contents (Elt F) → (⟨S4x256x1, .f32⟩ : BufTy).Contents (Elt F)),
    unary main_arg2 main_v8269 ((extractStridedSlice S4x1x16 ![0, 413, 0] · slices_S4x512x16_S4x1x16_0_413_0) : (⟨S4x512x16, .f32⟩ : BufTy).Contents (Elt F) → (⟨S4x1x16, .f32⟩ : BufTy).Contents (Elt F)),
    reshape main_v8269 main_v8270 rfl shapeCasts_S4x1x16_S4x16,
    unary main_v8270 main_v8271 (broadcastInDim S4x1x16 ![0, 2] bcast_S4x16_S4x1x16_0_2 : (⟨S4x16, .f32⟩ : BufTy).Contents (Elt F) → (⟨S4x1x16, .f32⟩ : BufTy).Contents (Elt F)),
    unary main_v8268 main_v8272 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8271 main_v8273 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8272 main_v8273 main_v8274 (mulf : (⟨S4x256x16, .f32⟩ : BufTy).Contents (Elt F) → (⟨S4x256x16, .f32⟩ : BufTy).Contents (Elt F) → (⟨S4x256x16, .f32⟩ : BufTy).Contents (Elt F)),
    binary main_v8265 main_v8274 main_v8275 (addf : (⟨S4x256x16, .f32⟩ : BufTy).Contents (Elt F) → (⟨S4x256x16, .f32⟩ : BufTy).Contents (Elt F) → (⟨S4x256x16, .f32⟩ : BufTy).Contents (Elt F)),
    unary main_arg3 main_v8276 ((extractStridedSlice S4x1x16 ![0, 413, 0] · slices_S4x512x16_S4x1x16_0_413_0) : (⟨S4x512x16, .f32⟩ : BufTy).Contents (Elt F) → (⟨S4x1x16, .f32⟩ : BufTy).Contents (Elt F)),
    reshape main_v8276 main_v8277 rfl shapeCasts_S4x1x16_S4x16,
    unary main_v8277 main_v8278 (broadcastInDim S4x1x16 ![0, 2] bcast_S4x16_S4x1x16_0_2 : (⟨S4x16, .f32⟩ : BufTy).Contents (Elt F) → (⟨S4x1x16, .f32⟩ : BufTy).Contents (Elt F)),
    unary main_v8278 main_v8279 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8275 main_v8279 main_v8280 (mulf : (⟨S4x256x16, .f32⟩ : BufTy).Contents (Elt F) → (⟨S4x256x16, .f32⟩ : BufTy).Contents (Elt F) → (⟨S4x256x16, .f32⟩ : BufTy).Contents (Elt F)),
    nullary main_cst_826 (constant S_ .f32 0x00000000#32),
    binary main_v8280 main_cst_826 main_v8281 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_827 (constantI S_ 32 413#32),
    unary main_c_827 main_v8282 (broadcastInDim S1 ![] bcast_S_S1 : (⟨S_, .i32⟩ : BufTy).Contents (Elt F) → (⟨S1, .i32⟩ : BufTy).Contents (Elt F)),
    ternary main_v8263 main_v8282 main_v8281 main_v8283 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps413_ok : (stepOps413 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step413_val (V : Valuation τ sig (Elt Ideal)) :
    after (stepOps413 (F := Ideal)) V (no_index (Proc.devRef .tc main_v8275)) = stepH 413 (by decide) (V (Proc.devRef .tc main_arg0)) (V (Proc.devRef .tc main_v3)) (V (Proc.devRef .tc main_arg2)) (V (Proc.devRef .tc main_v8255))
    ∧ after (stepOps413 (F := Ideal)) V (no_index (Proc.devRef .tc main_v8283)) = stepY 413 (by decide) (V (Proc.devRef .tc main_arg3)) (stepH 413 (by decide) (V (Proc.devRef .tc main_arg0)) (V (Proc.devRef .tc main_v3)) (V (Proc.devRef .tc main_arg2)) (V (Proc.devRef .tc main_v8255))) (V (Proc.devRef .tc main_v8263)) := by
  simp only [stepOps413]
  after_results_simp
  first | exact ⟨rfl, rfl⟩ | fail "value"
/-- Step 414 of the loop: operations 9115 … 9136 of the program. -/
abbrev stepOps414 : List (HloOp τ sig (Elt F)) :=
  [ unary main_v3 main_v8284 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8275 main_v8284 main_v8285 (mulf : (⟨S4x256x16, .f32⟩ : BufTy).Contents (Elt F) → (⟨S4x256x16, .f32⟩ : BufTy).Contents (Elt F) → (⟨S4x256x16, .f32⟩ : BufTy).Contents (Elt F)),
    unary main_arg0 main_v8286 ((extractStridedSlice S4x1x256 ![0, 414, 0] · slices_S4x512x256_S4x1x256_0_414_0) : (⟨S4x512x256, .f32⟩ : BufTy).Contents (Elt F) → (⟨S4x1x256, .f32⟩ : BufTy).Contents (Elt F)),
    reshape main_v8286 main_v8287 rfl shapeCasts_S4x1x256_S4x256,
    unary main_v8287 main_v8288 (broadcastInDim S4x256x1 ![0, 1] bcast_S4x256_S4x256x1_0_1 : (⟨S4x256, .f32⟩ : BufTy).Contents (Elt F) → (⟨S4x256x1, .f32⟩ : BufTy).Contents (Elt F)),
    unary main_arg2 main_v8289 ((extractStridedSlice S4x1x16 ![0, 414, 0] · slices_S4x512x16_S4x1x16_0_414_0) : (⟨S4x512x16, .f32⟩ : BufTy).Contents (Elt F) → (⟨S4x1x16, .f32⟩ : BufTy).Contents (Elt F)),
    reshape main_v8289 main_v8290 rfl shapeCasts_S4x1x16_S4x16,
    unary main_v8290 main_v8291 (broadcastInDim S4x1x16 ![0, 2] bcast_S4x16_S4x1x16_0_2 : (⟨S4x16, .f32⟩ : BufTy).Contents (Elt F) → (⟨S4x1x16, .f32⟩ : BufTy).Contents (Elt F)),
    unary main_v8288 main_v8292 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8291 main_v8293 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8292 main_v8293 main_v8294 (mulf : (⟨S4x256x16, .f32⟩ : BufTy).Contents (Elt F) → (⟨S4x256x16, .f32⟩ : BufTy).Contents (Elt F) → (⟨S4x256x16, .f32⟩ : BufTy).Contents (Elt F)),
    binary main_v8285 main_v8294 main_v8295 (addf : (⟨S4x256x16, .f32⟩ : BufTy).Contents (Elt F) → (⟨S4x256x16, .f32⟩ : BufTy).Contents (Elt F) → (⟨S4x256x16, .f32⟩ : BufTy).Contents (Elt F)),
    unary main_arg3 main_v8296 ((extractStridedSlice S4x1x16 ![0, 414, 0] · slices_S4x512x16_S4x1x16_0_414_0) : (⟨S4x512x16, .f32⟩ : BufTy).Contents (Elt F) → (⟨S4x1x16, .f32⟩ : BufTy).Contents (Elt F)),
    reshape main_v8296 main_v8297 rfl shapeCasts_S4x1x16_S4x16,
    unary main_v8297 main_v8298 (broadcastInDim S4x1x16 ![0, 2] bcast_S4x16_S4x1x16_0_2 : (⟨S4x16, .f32⟩ : BufTy).Contents (Elt F) → (⟨S4x1x16, .f32⟩ : BufTy).Contents (Elt F)),
    unary main_v8298 main_v8299 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8295 main_v8299 main_v8300 (mulf : (⟨S4x256x16, .f32⟩ : BufTy).Contents (Elt F) → (⟨S4x256x16, .f32⟩ : BufTy).Contents (Elt F) → (⟨S4x256x16, .f32⟩ : BufTy).Contents (Elt F)),
    nullary main_cst_828 (constant S_ .f32 0x00000000#32),
    binary main_v8300 main_cst_828 main_v8301 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_829 (constantI S_ 32 414#32),
    unary main_c_829 main_v8302 (broadcastInDim S1 ![] bcast_S_S1 : (⟨S_, .i32⟩ : BufTy).Contents (Elt F) → (⟨S1, .i32⟩ : BufTy).Contents (Elt F)),
    ternary main_v8283 main_v8302 main_v8301 main_v8303 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps414_ok : (stepOps414 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step414_val (V : Valuation τ sig (Elt Ideal)) :
    after (stepOps414 (F := Ideal)) V (no_index (Proc.devRef .tc main_v8295)) = stepH 414 (by decide) (V (Proc.devRef .tc main_arg0)) (V (Proc.devRef .tc main_v3)) (V (Proc.devRef .tc main_arg2)) (V (Proc.devRef .tc main_v8275))
    ∧ after (stepOps414 (F := Ideal)) V (no_index (Proc.devRef .tc main_v8303)) = stepY 414 (by decide) (V (Proc.devRef .tc main_arg3)) (stepH 414 (by decide) (V (Proc.devRef .tc main_arg0)) (V (Proc.devRef .tc main_v3)) (V (Proc.devRef .tc main_arg2)) (V (Proc.devRef .tc main_v8275))) (V (Proc.devRef .tc main_v8283)) := by
  simp only [stepOps414]
  after_results_simp
  first | exact ⟨rfl, rfl⟩ | fail "value"
/-- Step 415 of the loop: operations 9137 … 9158 of the program. -/
abbrev stepOps415 : List (HloOp τ sig (Elt F)) :=
  [ unary main_v3 main_v8304 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8295 main_v8304 main_v8305 (mulf : (⟨S4x256x16, .f32⟩ : BufTy).Contents (Elt F) → (⟨S4x256x16, .f32⟩ : BufTy).Contents (Elt F) → (⟨S4x256x16, .f32⟩ : BufTy).Contents (Elt F)),
    unary main_arg0 main_v8306 ((extractStridedSlice S4x1x256 ![0, 415, 0] · slices_S4x512x256_S4x1x256_0_415_0) : (⟨S4x512x256, .f32⟩ : BufTy).Contents (Elt F) → (⟨S4x1x256, .f32⟩ : BufTy).Contents (Elt F)),
    reshape main_v8306 main_v8307 rfl shapeCasts_S4x1x256_S4x256,
    unary main_v8307 main_v8308 (broadcastInDim S4x256x1 ![0, 1] bcast_S4x256_S4x256x1_0_1 : (⟨S4x256, .f32⟩ : BufTy).Contents (Elt F) → (⟨S4x256x1, .f32⟩ : BufTy).Contents (Elt F)),
    unary main_arg2 main_v8309 ((extractStridedSlice S4x1x16 ![0, 415, 0] · slices_S4x512x16_S4x1x16_0_415_0) : (⟨S4x512x16, .f32⟩ : BufTy).Contents (Elt F) → (⟨S4x1x16, .f32⟩ : BufTy).Contents (Elt F)),
    reshape main_v8309 main_v8310 rfl shapeCasts_S4x1x16_S4x16,
    unary main_v8310 main_v8311 (broadcastInDim S4x1x16 ![0, 2] bcast_S4x16_S4x1x16_0_2 : (⟨S4x16, .f32⟩ : BufTy).Contents (Elt F) → (⟨S4x1x16, .f32⟩ : BufTy).Contents (Elt F)),
    unary main_v8308 main_v8312 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8311 main_v8313 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8312 main_v8313 main_v8314 (mulf : (⟨S4x256x16, .f32⟩ : BufTy).Contents (Elt F) → (⟨S4x256x16, .f32⟩ : BufTy).Contents (Elt F) → (⟨S4x256x16, .f32⟩ : BufTy).Contents (Elt F)),
    binary main_v8305 main_v8314 main_v8315 (addf : (⟨S4x256x16, .f32⟩ : BufTy).Contents (Elt F) → (⟨S4x256x16, .f32⟩ : BufTy).Contents (Elt F) → (⟨S4x256x16, .f32⟩ : BufTy).Contents (Elt F)),
    unary main_arg3 main_v8316 ((extractStridedSlice S4x1x16 ![0, 415, 0] · slices_S4x512x16_S4x1x16_0_415_0) : (⟨S4x512x16, .f32⟩ : BufTy).Contents (Elt F) → (⟨S4x1x16, .f32⟩ : BufTy).Contents (Elt F)),
    reshape main_v8316 main_v8317 rfl shapeCasts_S4x1x16_S4x16,
    unary main_v8317 main_v8318 (broadcastInDim S4x1x16 ![0, 2] bcast_S4x16_S4x1x16_0_2 : (⟨S4x16, .f32⟩ : BufTy).Contents (Elt F) → (⟨S4x1x16, .f32⟩ : BufTy).Contents (Elt F)),
    unary main_v8318 main_v8319 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8315 main_v8319 main_v8320 (mulf : (⟨S4x256x16, .f32⟩ : BufTy).Contents (Elt F) → (⟨S4x256x16, .f32⟩ : BufTy).Contents (Elt F) → (⟨S4x256x16, .f32⟩ : BufTy).Contents (Elt F)),
    nullary main_cst_830 (constant S_ .f32 0x00000000#32),
    binary main_v8320 main_cst_830 main_v8321 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_831 (constantI S_ 32 415#32),
    unary main_c_831 main_v8322 (broadcastInDim S1 ![] bcast_S_S1 : (⟨S_, .i32⟩ : BufTy).Contents (Elt F) → (⟨S1, .i32⟩ : BufTy).Contents (Elt F)),
    ternary main_v8303 main_v8322 main_v8321 main_v8323 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps415_ok : (stepOps415 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step415_val (V : Valuation τ sig (Elt Ideal)) :
    after (stepOps415 (F := Ideal)) V (no_index (Proc.devRef .tc main_v8315)) = stepH 415 (by decide) (V (Proc.devRef .tc main_arg0)) (V (Proc.devRef .tc main_v3)) (V (Proc.devRef .tc main_arg2)) (V (Proc.devRef .tc main_v8295))
    ∧ after (stepOps415 (F := Ideal)) V (no_index (Proc.devRef .tc main_v8323)) = stepY 415 (by decide) (V (Proc.devRef .tc main_arg3)) (stepH 415 (by decide) (V (Proc.devRef .tc main_arg0)) (V (Proc.devRef .tc main_v3)) (V (Proc.devRef .tc main_arg2)) (V (Proc.devRef .tc main_v8295))) (V (Proc.devRef .tc main_v8303)) := by
  simp only [stepOps415]
  after_results_simp
  first | exact ⟨rfl, rfl⟩ | fail "value"

end Cert.ReferenceIdeal.RefRun

end
-- ==== Proof.RefTableStep26.lean ====
/-
  Steps 416 … 431 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 416 of the loop: operations 9159 … 9180 of the program. -/
abbrev stepOps416 : List (HloOp τ sig (Elt F)) :=
  [ unary main_v3 main_v8324 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8315 main_v8324 main_v8325 (mulf : (⟨S4x256x16, .f32⟩ : BufTy).Contents (Elt F) → (⟨S4x256x16, .f32⟩ : BufTy).Contents (Elt F) → (⟨S4x256x16, .f32⟩ : BufTy).Contents (Elt F)),
    unary main_arg0 main_v8326 ((extractStridedSlice S4x1x256 ![0, 416, 0] · slices_S4x512x256_S4x1x256_0_416_0) : (⟨S4x512x256, .f32⟩ : BufTy).Contents (Elt F) → (⟨S4x1x256, .f32⟩ : BufTy).Contents (Elt F)),
    reshape main_v8326 main_v8327 rfl shapeCasts_S4x1x256_S4x256,
    unary main_v8327 main_v8328 (broadcastInDim S4x256x1 ![0, 1] bcast_S4x256_S4x256x1_0_1 : (⟨S4x256, .f32⟩ : BufTy).Contents (Elt F) → (⟨S4x256x1, .f32⟩ : BufTy).Contents (Elt F)),
    unary main_arg2 main_v8329 ((extractStridedSlice S4x1x16 ![0, 416, 0] · slices_S4x512x16_S4x1x16_0_416_0) : (⟨S4x512x16, .f32⟩ : BufTy).Contents (Elt F) → (⟨S4x1x16, .f32⟩ : BufTy).Contents (Elt F)),
    reshape main_v8329 main_v8330 rfl shapeCasts_S4x1x16_S4x16,
    unary main_v8330 main_v8331 (broadcastInDim S4x1x16 ![0, 2] bcast_S4x16_S4x1x16_0_2 : (⟨S4x16, .f32⟩ : BufTy).Contents (Elt F) → (⟨S4x1x16, .f32⟩ : BufTy).Contents (Elt F)),
    unary main_v8328 main_v8332 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8331 main_v8333 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8332 main_v8333 main_v8334 (mulf : (⟨S4x256x16, .f32⟩ : BufTy).Contents (Elt F) → (⟨S4x256x16, .f32⟩ : BufTy).Contents (Elt F) → (⟨S4x256x16, .f32⟩ : BufTy).Contents (Elt F)),
    binary main_v8325 main_v8334 main_v8335 (addf : (⟨S4x256x16, .f32⟩ : BufTy).Contents (Elt F) → (⟨S4x256x16, .f32⟩ : BufTy).Contents (Elt F) → (⟨S4x256x16, .f32⟩ : BufTy).Contents (Elt F)),
    unary main_arg3 main_v8336 ((extractStridedSlice S4x1x16 ![0, 416, 0] · slices_S4x512x16_S4x1x16_0_416_0) : (⟨S4x512x16, .f32⟩ : BufTy).Contents (Elt F) → (⟨S4x1x16, .f32⟩ : BufTy).Contents (Elt F)),
    reshape main_v8336 main_v8337 rfl shapeCasts_S4x1x16_S4x16,
    unary main_v8337 main_v8338 (broadcastInDim S4x1x16 ![0, 2] bcast_S4x16_S4x1x16_0_2 : (⟨S4x16, .f32⟩ : BufTy).Contents (Elt F) → (⟨S4x1x16, .f32⟩ : BufTy).Contents (Elt F)),
    unary main_v8338 main_v8339 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8335 main_v8339 main_v8340 (mulf : (⟨S4x256x16, .f32⟩ : BufTy).Contents (Elt F) → (⟨S4x256x16, .f32⟩ : BufTy).Contents (Elt F) → (⟨S4x256x16, .f32⟩ : BufTy).Contents (Elt F)),
    nullary main_cst_832 (constant S_ .f32 0x00000000#32),
    binary main_v8340 main_cst_832 main_v8341 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_833 (constantI S_ 32 416#32),
    unary main_c_833 main_v8342 (broadcastInDim S1 ![] bcast_S_S1 : (⟨S_, .i32⟩ : BufTy).Contents (Elt F) → (⟨S1, .i32⟩ : BufTy).Contents (Elt F)),
    ternary main_v8323 main_v8342 main_v8341 main_v8343 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps416_ok : (stepOps416 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step416_val (V : Valuation τ sig (Elt Ideal)) :
    after (stepOps416 (F := Ideal)) V (no_index (Proc.devRef .tc main_v8335)) = stepH 416 (by decide) (V (Proc.devRef .tc main_arg0)) (V (Proc.devRef .tc main_v3)) (V (Proc.devRef .tc main_arg2)) (V (Proc.devRef .tc main_v8315))
    ∧ after (stepOps416 (F := Ideal)) V (no_index (Proc.devRef .tc main_v8343)) = stepY 416 (by decide) (V (Proc.devRef .tc main_arg3)) (stepH 416 (by decide) (V (Proc.devRef .tc main_arg0)) (V (Proc.devRef .tc main_v3)) (V (Proc.devRef .tc main_arg2)) (V (Proc.devRef .tc main_v8315))) (V (Proc.devRef .tc main_v8323)) := by
  simp only [stepOps416]
  after_results_simp
  first | exact ⟨rfl, rfl⟩ | fail "value"
/-- Step 417 of the loop: operations 9181 … 9202 of the program. -/
abbrev stepOps417 : List (HloOp τ sig (Elt F)) :=
  [ unary main_v3 main_v8344 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8335 main_v8344 main_v8345 (mulf : (⟨S4x256x16, .f32⟩ : BufTy).Contents (Elt F) → (⟨S4x256x16, .f32⟩ : BufTy).Contents (Elt F) → (⟨S4x256x16, .f32⟩ : BufTy).Contents (Elt F)),
    unary main_arg0 main_v8346 ((extractStridedSlice S4x1x256 ![0, 417, 0] · slices_S4x512x256_S4x1x256_0_417_0) : (⟨S4x512x256, .f32⟩ : BufTy).Contents (Elt F) → (⟨S4x1x256, .f32⟩ : BufTy).Contents (Elt F)),
    reshape main_v8346 main_v8347 rfl shapeCasts_S4x1x256_S4x256,
    unary main_v8347 main_v8348 (broadcastInDim S4x256x1 ![0, 1] bcast_S4x256_S4x256x1_0_1 : (⟨S4x256, .f32⟩ : BufTy).Contents (Elt F) → (⟨S4x256x1, .f32⟩ : BufTy).Contents (Elt F)),
    unary main_arg2 main_v8349 ((extractStridedSlice S4x1x16 ![0, 417, 0] · slices_S4x512x16_S4x1x16_0_417_0) : (⟨S4x512x16, .f32⟩ : BufTy).Contents (Elt F) → (⟨S4x1x16, .f32⟩ : BufTy).Contents (Elt F)),
    reshape main_v8349 main_v8350 rfl shapeCasts_S4x1x16_S4x16,
    unary main_v8350 main_v8351 (broadcastInDim S4x1x16 ![0, 2] bcast_S4x16_S4x1x16_0_2 : (⟨S4x16, .f32⟩ : BufTy).Contents (Elt F) → (⟨S4x1x16, .f32⟩ : BufTy).Contents (Elt F)),
    unary main_v8348 main_v8352 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8351 main_v8353 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8352 main_v8353 main_v8354 (mulf : (⟨S4x256x16, .f32⟩ : BufTy).Contents (Elt F) → (⟨S4x256x16, .f32⟩ : BufTy).Contents (Elt F) → (⟨S4x256x16, .f32⟩ : BufTy).Contents (Elt F)),
    binary main_v8345 main_v8354 main_v8355 (addf : (⟨S4x256x16, .f32⟩ : BufTy).Contents (Elt F) → (⟨S4x256x16, .f32⟩ : BufTy).Contents (Elt F) → (⟨S4x256x16, .f32⟩ : BufTy).Contents (Elt F)),
    unary main_arg3 main_v8356 ((extractStridedSlice S4x1x16 ![0, 417, 0] · slices_S4x512x16_S4x1x16_0_417_0) : (⟨S4x512x16, .f32⟩ : BufTy).Contents (Elt F) → (⟨S4x1x16, .f32⟩ : BufTy).Contents (Elt F)),
    reshape main_v8356 main_v8357 rfl shapeCasts_S4x1x16_S4x16,
    unary main_v8357 main_v8358 (broadcastInDim S4x1x16 ![0, 2] bcast_S4x16_S4x1x16_0_2 : (⟨S4x16, .f32⟩ : BufTy).Contents (Elt F) → (⟨S4x1x16, .f32⟩ : BufTy).Contents (Elt F)),
    unary main_v8358 main_v8359 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8355 main_v8359 main_v8360 (mulf : (⟨S4x256x16, .f32⟩ : BufTy).Contents (Elt F) → (⟨S4x256x16, .f32⟩ : BufTy).Contents (Elt F) → (⟨S4x256x16, .f32⟩ : BufTy).Contents (Elt F)),
    nullary main_cst_834 (constant S_ .f32 0x00000000#32),
    binary main_v8360 main_cst_834 main_v8361 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_835 (constantI S_ 32 417#32),
    unary main_c_835 main_v8362 (broadcastInDim S1 ![] bcast_S_S1 : (⟨S_, .i32⟩ : BufTy).Contents (Elt F) → (⟨S1, .i32⟩ : BufTy).Contents (Elt F)),
    ternary main_v8343 main_v8362 main_v8361 main_v8363 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps417_ok : (stepOps417 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step417_val (V : Valuation τ sig (Elt Ideal)) :
    after (stepOps417 (F := Ideal)) V (no_index (Proc.devRef .tc main_v8355)) = stepH 417 (by decide) (V (Proc.devRef .tc main_arg0)) (V (Proc.devRef .tc main_v3)) (V (Proc.devRef .tc main_arg2)) (V (Proc.devRef .tc main_v8335))
    ∧ after (stepOps417 (F := Ideal)) V (no_index (Proc.devRef .tc main_v8363)) = stepY 417 (by decide) (V (Proc.devRef .tc main_arg3)) (stepH 417 (by decide) (V (Proc.devRef .tc main_arg0)) (V (Proc.devRef .tc main_v3)) (V (Proc.devRef .tc main_arg2)) (V (Proc.devRef .tc main_v8335))) (V (Proc.devRef .tc main_v8343)) := by
  simp only [stepOps417]
  after_results_simp
  first | exact ⟨rfl, rfl⟩ | fail "value"
/-- Step 418 of the loop: operations 9203 … 9224 of the program. -/
abbrev stepOps418 : List (HloOp τ sig (Elt F)) :=
  [ unary main_v3 main_v8364 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8355 main_v8364 main_v8365 (mulf : (⟨S4x256x16, .f32⟩ : BufTy).Contents (Elt F) → (⟨S4x256x16, .f32⟩ : BufTy).Contents (Elt F) → (⟨S4x256x16, .f32⟩ : BufTy).Contents (Elt F)),
    unary main_arg0 main_v8366 ((extractStridedSlice S4x1x256 ![0, 418, 0] · slices_S4x512x256_S4x1x256_0_418_0) : (⟨S4x512x256, .f32⟩ : BufTy).Contents (Elt F) → (⟨S4x1x256, .f32⟩ : BufTy).Contents (Elt F)),
    reshape main_v8366 main_v8367 rfl shapeCasts_S4x1x256_S4x256,
    unary main_v8367 main_v8368 (broadcastInDim S4x256x1 ![0, 1] bcast_S4x256_S4x256x1_0_1 : (⟨S4x256, .f32⟩ : BufTy).Contents (Elt F) → (⟨S4x256x1, .f32⟩ : BufTy).Contents (Elt F)),
    unary main_arg2 main_v8369 ((extractStridedSlice S4x1x16 ![0, 418, 0] · slices_S4x512x16_S4x1x16_0_418_0) : (⟨S4x512x16, .f32⟩ : BufTy).Contents (Elt F) → (⟨S4x1x16, .f32⟩ : BufTy).Contents (Elt F)),
    reshape main_v8369 main_v8370 rfl shapeCasts_S4x1x16_S4x16,
    unary main_v8370 main_v8371 (broadcastInDim S4x1x16 ![0, 2] bcast_S4x16_S4x1x16_0_2 : (⟨S4x16, .f32⟩ : BufTy).Contents (Elt F) → (⟨S4x1x16, .f32⟩ : BufTy).Contents (Elt F)),
    unary main_v8368 main_v8372 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8371 main_v8373 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8372 main_v8373 main_v8374 (mulf : (⟨S4x256x16, .f32⟩ : BufTy).Contents (Elt F) → (⟨S4x256x16, .f32⟩ : BufTy).Contents (Elt F) → (⟨S4x256x16, .f32⟩ : BufTy).Contents (Elt F)),
    binary main_v8365 main_v8374 main_v8375 (addf : (⟨S4x256x16, .f32⟩ : BufTy).Contents (Elt F) → (⟨S4x256x16, .f32⟩ : BufTy).Contents (Elt F) → (⟨S4x256x16, .f32⟩ : BufTy).Contents (Elt F)),
    unary main_arg3 main_v8376 ((extractStridedSlice S4x1x16 ![0, 418, 0] · slices_S4x512x16_S4x1x16_0_418_0) : (⟨S4x512x16, .f32⟩ : BufTy).Contents (Elt F) → (⟨S4x1x16, .f32⟩ : BufTy).Contents (Elt F)),
    reshape main_v8376 main_v8377 rfl shapeCasts_S4x1x16_S4x16,
    unary main_v8377 main_v8378 (broadcastInDim S4x1x16 ![0, 2] bcast_S4x16_S4x1x16_0_2 : (⟨S4x16, .f32⟩ : BufTy).Contents (Elt F) → (⟨S4x1x16, .f32⟩ : BufTy).Contents (Elt F)),
    unary main_v8378 main_v8379 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8375 main_v8379 main_v8380 (mulf : (⟨S4x256x16, .f32⟩ : BufTy).Contents (Elt F) → (⟨S4x256x16, .f32⟩ : BufTy).Contents (Elt F) → (⟨S4x256x16, .f32⟩ : BufTy).Contents (Elt F)),
    nullary main_cst_836 (constant S_ .f32 0x00000000#32),
    binary main_v8380 main_cst_836 main_v8381 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_837 (constantI S_ 32 418#32),
    unary main_c_837 main_v8382 (broadcastInDim S1 ![] bcast_S_S1 : (⟨S_, .i32⟩ : BufTy).Contents (Elt F) → (⟨S1, .i32⟩ : BufTy).Contents (Elt F)),
    ternary main_v8363 main_v8382 main_v8381 main_v8383 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps418_ok : (stepOps418 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step418_val (V : Valuation τ sig (Elt Ideal)) :
    after (stepOps418 (F := Ideal)) V (no_index (Proc.devRef .tc main_v8375)) = stepH 418 (by decide) (V (Proc.devRef .tc main_arg0)) (V (Proc.devRef .tc main_v3)) (V (Proc.devRef .tc main_arg2)) (V (Proc.devRef .tc main_v8355))
    ∧ after (stepOps418 (F := Ideal)) V (no_index (Proc.devRef .tc main_v8383)) = stepY 418 (by decide) (V (Proc.devRef .tc main_arg3)) (stepH 418 (by decide) (V (Proc.devRef .tc main_arg0)) (V (Proc.devRef .tc main_v3)) (V (Proc.devRef .tc main_arg2)) (V (Proc.devRef .tc main_v8355))) (V (Proc.devRef .tc main_v8363)) := by
  simp only [stepOps418]
  after_results_simp
  first | exact ⟨rfl, rfl⟩ | fail "value"
/-- Step 419 of the loop: operations 9225 … 9246 of the program. -/
abbrev stepOps419 : List (HloOp τ sig (Elt F)) :=
  [ unary main_v3 main_v8384 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8375 main_v8384 main_v8385 (mulf : (⟨S4x256x16, .f32⟩ : BufTy).Contents (Elt F) → (⟨S4x256x16, .f32⟩ : BufTy).Contents (Elt F) → (⟨S4x256x16, .f32⟩ : BufTy).Contents (Elt F)),
    unary main_arg0 main_v8386 ((extractStridedSlice S4x1x256 ![0, 419, 0] · slices_S4x512x256_S4x1x256_0_419_0) : (⟨S4x512x256, .f32⟩ : BufTy).Contents (Elt F) → (⟨S4x1x256, .f32⟩ : BufTy).Contents (Elt F)),
    reshape main_v8386 main_v8387 rfl shapeCasts_S4x1x256_S4x256,
    unary main_v8387 main_v8388 (broadcastInDim S4x256x1 ![0, 1] bcast_S4x256_S4x256x1_0_1 : (⟨S4x256, .f32⟩ : BufTy).Contents (Elt F) → (⟨S4x256x1, .f32⟩ : BufTy).Contents (Elt F)),
    unary main_arg2 main_v8389 ((extractStridedSlice S4x1x16 ![0, 419, 0] · slices_S4x512x16_S4x1x16_0_419_0) : (⟨S4x512x16, .f32⟩ : BufTy).Contents (Elt F) → (⟨S4x1x16, .f32⟩ : BufTy).Contents (Elt F)),
    reshape main_v8389 main_v8390 rfl shapeCasts_S4x1x16_S4x16,
    unary main_v8390 main_v8391 (broadcastInDim S4x1x16 ![0, 2] bcast_S4x16_S4x1x16_0_2 : (⟨S4x16, .f32⟩ : BufTy).Contents (Elt F) → (⟨S4x1x16, .f32⟩ : BufTy).Contents (Elt F)),
    unary main_v8388 main_v8392 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8391 main_v8393 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8392 main_v8393 main_v8394 (mulf : (⟨S4x256x16, .f32⟩ : BufTy).Contents (Elt F) → (⟨S4x256x16, .f32⟩ : BufTy).Contents (Elt F) → (⟨S4x256x16, .f32⟩ : BufTy).Contents (Elt F)),
    binary main_v8385 main_v8394 main_v8395 (addf : (⟨S4x256x16, .f32⟩ : BufTy).Contents (Elt F) → (⟨S4x256x16, .f32⟩ : BufTy).Contents (Elt F) → (⟨S4x256x16, .f32⟩ : BufTy).Contents (Elt F)),
    unary main_arg3 main_v8396 ((extractStridedSlice S4x1x16 ![0, 419, 0] · slices_S4x512x16_S4x1x16_0_419_0) : (⟨S4x512x16, .f32⟩ : BufTy).Contents (Elt F) → (⟨S4x1x16, .f32⟩ : BufTy).Contents (Elt F)),
    reshape main_v8396 main_v8397 rfl shapeCasts_S4x1x16_S4x16,
    unary main_v8397 main_v8398 (broadcastInDim S4x1x16 ![0, 2] bcast_S4x16_S4x1x16_0_2 : (⟨S4x16, .f32⟩ : BufTy).Contents (Elt F) → (⟨S4x1x16, .f32⟩ : BufTy).Contents (Elt F)),
    unary main_v8398 main_v8399 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8395 main_v8399 main_v8400 (mulf : (⟨S4x256x16, .f32⟩ : BufTy).Contents (Elt F) → (⟨S4x256x16, .f32⟩ : BufTy).Contents (Elt F) → (⟨S4x256x16, .f32⟩ : BufTy).Contents (Elt F)),
    nullary main_cst_838 (constant S_ .f32 0x00000000#32),
    binary main_v8400 main_cst_838 main_v8401 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_839 (constantI S_ 32 419#32),
    unary main_c_839 main_v8402 (broadcastInDim S1 ![] bcast_S_S1 : (⟨S_, .i32⟩ : BufTy).Contents (Elt F) → (⟨S1, .i32⟩ : BufTy).Contents (Elt F)),
    ternary main_v8383 main_v8402 main_v8401 main_v8403 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps419_ok : (stepOps419 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step419_val (V : Valuation τ sig (Elt Ideal)) :
    after (stepOps419 (F := Ideal)) V (no_index (Proc.devRef .tc main_v8395)) = stepH 419 (by decide) (V (Proc.devRef .tc main_arg0)) (V (Proc.devRef .tc main_v3)) (V (Proc.devRef .tc main_arg2)) (V (Proc.devRef .tc main_v8375))
    ∧ after (stepOps419 (F := Ideal)) V (no_index (Proc.devRef .tc main_v8403)) = stepY 419 (by decide) (V (Proc.devRef .tc main_arg3)) (stepH 419 (by decide) (V (Proc.devRef .tc main_arg0)) (V (Proc.devRef .tc main_v3)) (V (Proc.devRef .tc main_arg2)) (V (Proc.devRef .tc main_v8375))) (V (Proc.devRef .tc main_v8383)) := by
  simp only [stepOps419]
  after_results_simp
  first | exact ⟨rfl, rfl⟩ | fail "value"
/-- Step 420 of the loop: operations 9247 … 9268 of the program. -/
abbrev stepOps420 : List (HloOp τ sig (Elt F)) :=
  [ unary main_v3 main_v8404 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8395 main_v8404 main_v8405 (mulf : (⟨S4x256x16, .f32⟩ : BufTy).Contents (Elt F) → (⟨S4x256x16, .f32⟩ : BufTy).Contents (Elt F) → (⟨S4x256x16, .f32⟩ : BufTy).Contents (Elt F)),
    unary main_arg0 main_v8406 ((extractStridedSlice S4x1x256 ![0, 420, 0] · slices_S4x512x256_S4x1x256_0_420_0) : (⟨S4x512x256, .f32⟩ : BufTy).Contents (Elt F) → (⟨S4x1x256, .f32⟩ : BufTy).Contents (Elt F)),
    reshape main_v8406 main_v8407 rfl shapeCasts_S4x1x256_S4x256,
    unary main_v8407 main_v8408 (broadcastInDim S4x256x1 ![0, 1] bcast_S4x256_S4x256x1_0_1 : (⟨S4x256, .f32⟩ : BufTy).Contents (Elt F) → (⟨S4x256x1, .f32⟩ : BufTy).Contents (Elt F)),
    unary main_arg2 main_v8409 ((extractStridedSlice S4x1x16 ![0, 420, 0] · slices_S4x512x16_S4x1x16_0_420_0) : (⟨S4x512x16, .f32⟩ : BufTy).Contents (Elt F) → (⟨S4x1x16, .f32⟩ : BufTy).Contents (Elt F)),
    reshape main_v8409 main_v8410 rfl shapeCasts_S4x1x16_S4x16,
    unary main_v8410 main_v8411 (broadcastInDim S4x1x16 ![0, 2] bcast_S4x16_S4x1x16_0_2 : (⟨S4x16, .f32⟩ : BufTy).Contents (Elt F) → (⟨S4x1x16, .f32⟩ : BufTy).Contents (Elt F)),
    unary main_v8408 main_v8412 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8411 main_v8413 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8412 main_v8413 main_v8414 (mulf : (⟨S4x256x16, .f32⟩ : BufTy).Contents (Elt F) → (⟨S4x256x16, .f32⟩ : BufTy).Contents (Elt F) → (⟨S4x256x16, .f32⟩ : BufTy).Contents (Elt F)),
    binary main_v8405 main_v8414 main_v8415 (addf : (⟨S4x256x16, .f32⟩ : BufTy).Contents (Elt F) → (⟨S4x256x16, .f32⟩ : BufTy).Contents (Elt F) → (⟨S4x256x16, .f32⟩ : BufTy).Contents (Elt F)),
    unary main_arg3 main_v8416 ((extractStridedSlice S4x1x16 ![0, 420, 0] · slices_S4x512x16_S4x1x16_0_420_0) : (⟨S4x512x16, .f32⟩ : BufTy).Contents (Elt F) → (⟨S4x1x16, .f32⟩ : BufTy).Contents (Elt F)),
    reshape main_v8416 main_v8417 rfl shapeCasts_S4x1x16_S4x16,
    unary main_v8417 main_v8418 (broadcastInDim S4x1x16 ![0, 2] bcast_S4x16_S4x1x16_0_2 : (⟨S4x16, .f32⟩ : BufTy).Contents (Elt F) → (⟨S4x1x16, .f32⟩ : BufTy).Contents (Elt F)),
    unary main_v8418 main_v8419 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8415 main_v8419 main_v8420 (mulf : (⟨S4x256x16, .f32⟩ : BufTy).Contents (Elt F) → (⟨S4x256x16, .f32⟩ : BufTy).Contents (Elt F) → (⟨S4x256x16, .f32⟩ : BufTy).Contents (Elt F)),
    nullary main_cst_840 (constant S_ .f32 0x00000000#32),
    binary main_v8420 main_cst_840 main_v8421 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_841 (constantI S_ 32 420#32),
    unary main_c_841 main_v8422 (broadcastInDim S1 ![] bcast_S_S1 : (⟨S_, .i32⟩ : BufTy).Contents (Elt F) → (⟨S1, .i32⟩ : BufTy).Contents (Elt F)),
    ternary main_v8403 main_v8422 main_v8421 main_v8423 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps420_ok : (stepOps420 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step420_val (V : Valuation τ sig (Elt Ideal)) :
    after (stepOps420 (F := Ideal)) V (no_index (Proc.devRef .tc main_v8415)) = stepH 420 (by decide) (V (Proc.devRef .tc main_arg0)) (V (Proc.devRef .tc main_v3)) (V (Proc.devRef .tc main_arg2)) (V (Proc.devRef .tc main_v8395))
    ∧ after (stepOps420 (F := Ideal)) V (no_index (Proc.devRef .tc main_v8423)) = stepY 420 (by decide) (V (Proc.devRef .tc main_arg3)) (stepH 420 (by decide) (V (Proc.devRef .tc main_arg0)) (V (Proc.devRef .tc main_v3)) (V (Proc.devRef .tc main_arg2)) (V (Proc.devRef .tc main_v8395))) (V (Proc.devRef .tc main_v8403)) := by
  simp only [stepOps420]
  after_results_simp
  first | exact ⟨rfl, rfl⟩ | fail "value"
/-- Step 421 of the loop: operations 9269 … 9290 of the program. -/
abbrev stepOps421 : List (HloOp τ sig (Elt F)) :=
  [ unary main_v3 main_v8424 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8415 main_v8424 main_v8425 (mulf : (⟨S4x256x16, .f32⟩ : BufTy).Contents (Elt F) → (⟨S4x256x16, .f32⟩ : BufTy).Contents (Elt F) → (⟨S4x256x16, .f32⟩ : BufTy).Contents (Elt F)),
    unary main_arg0 main_v8426 ((extractStridedSlice S4x1x256 ![0, 421, 0] · slices_S4x512x256_S4x1x256_0_421_0) : (⟨S4x512x256, .f32⟩ : BufTy).Contents (Elt F) → (⟨S4x1x256, .f32⟩ : BufTy).Contents (Elt F)),
    reshape main_v8426 main_v8427 rfl shapeCasts_S4x1x256_S4x256,
    unary main_v8427 main_v8428 (broadcastInDim S4x256x1 ![0, 1] bcast_S4x256_S4x256x1_0_1 : (⟨S4x256, .f32⟩ : BufTy).Contents (Elt F) → (⟨S4x256x1, .f32⟩ : BufTy).Contents (Elt F)),
    unary main_arg2 main_v8429 ((extractStridedSlice S4x1x16 ![0, 421, 0] · slices_S4x512x16_S4x1x16_0_421_0) : (⟨S4x512x16, .f32⟩ : BufTy).Contents (Elt F) → (⟨S4x1x16, .f32⟩ : BufTy).Contents (Elt F)),
    reshape main_v8429 main_v8430 rfl shapeCasts_S4x1x16_S4x16,
    unary main_v8430 main_v8431 (broadcastInDim S4x1x16 ![0, 2] bcast_S4x16_S4x1x16_0_2 : (⟨S4x16, .f32⟩ : BufTy).Contents (Elt F) → (⟨S4x1x16, .f32⟩ : BufTy).Contents (Elt F)),
    unary main_v8428 main_v8432 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8431 main_v8433 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8432 main_v8433 main_v8434 (mulf : (⟨S4x256x16, .f32⟩ : BufTy).Contents (Elt F) → (⟨S4x256x16, .f32⟩ : BufTy).Contents (Elt F) → (⟨S4x256x16, .f32⟩ : BufTy).Contents (Elt F)),
    binary main_v8425 main_v8434 main_v8435 (addf : (⟨S4x256x16, .f32⟩ : BufTy).Contents (Elt F) → (⟨S4x256x16, .f32⟩ : BufTy).Contents (Elt F) → (⟨S4x256x16, .f32⟩ : BufTy).Contents (Elt F)),
    unary main_arg3 main_v8436 ((extractStridedSlice S4x1x16 ![0, 421, 0] · slices_S4x512x16_S4x1x16_0_421_0) : (⟨S4x512x16, .f32⟩ : BufTy).Contents (Elt F) → (⟨S4x1x16, .f32⟩ : BufTy).Contents (Elt F)),
    reshape main_v8436 main_v8437 rfl shapeCasts_S4x1x16_S4x16,
    unary main_v8437 main_v8438 (broadcastInDim S4x1x16 ![0, 2] bcast_S4x16_S4x1x16_0_2 : (⟨S4x16, .f32⟩ : BufTy).Contents (Elt F) → (⟨S4x1x16, .f32⟩ : BufTy).Contents (Elt F)),
    unary main_v8438 main_v8439 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8435 main_v8439 main_v8440 (mulf : (⟨S4x256x16, .f32⟩ : BufTy).Contents (Elt F) → (⟨S4x256x16, .f32⟩ : BufTy).Contents (Elt F) → (⟨S4x256x16, .f32⟩ : BufTy).Contents (Elt F)),
    nullary main_cst_842 (constant S_ .f32 0x00000000#32),
    binary main_v8440 main_cst_842 main_v8441 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_843 (constantI S_ 32 421#32),
    unary main_c_843 main_v8442 (broadcastInDim S1 ![] bcast_S_S1 : (⟨S_, .i32⟩ : BufTy).Contents (Elt F) → (⟨S1, .i32⟩ : BufTy).Contents (Elt F)),
    ternary main_v8423 main_v8442 main_v8441 main_v8443 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps421_ok : (stepOps421 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step421_val (V : Valuation τ sig (Elt Ideal)) :
    after (stepOps421 (F := Ideal)) V (no_index (Proc.devRef .tc main_v8435)) = stepH 421 (by decide) (V (Proc.devRef .tc main_arg0)) (V (Proc.devRef .tc main_v3)) (V (Proc.devRef .tc main_arg2)) (V (Proc.devRef .tc main_v8415))
    ∧ after (stepOps421 (F := Ideal)) V (no_index (Proc.devRef .tc main_v8443)) = stepY 421 (by decide) (V (Proc.devRef .tc main_arg3)) (stepH 421 (by decide) (V (Proc.devRef .tc main_arg0)) (V (Proc.devRef .tc main_v3)) (V (Proc.devRef .tc main_arg2)) (V (Proc.devRef .tc main_v8415))) (V (Proc.devRef .tc main_v8423)) := by
  simp only [stepOps421]
  after_results_simp
  first | exact ⟨rfl, rfl⟩ | fail "value"
/-- Step 422 of the loop: operations 9291 … 9312 of the program. -/
abbrev stepOps422 : List (HloOp τ sig (Elt F)) :=
  [ unary main_v3 main_v8444 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8435 main_v8444 main_v8445 (mulf : (⟨S4x256x16, .f32⟩ : BufTy).Contents (Elt F) → (⟨S4x256x16, .f32⟩ : BufTy).Contents (Elt F) → (⟨S4x256x16, .f32⟩ : BufTy).Contents (Elt F)),
    unary main_arg0 main_v8446 ((extractStridedSlice S4x1x256 ![0, 422, 0] · slices_S4x512x256_S4x1x256_0_422_0) : (⟨S4x512x256, .f32⟩ : BufTy).Contents (Elt F) → (⟨S4x1x256, .f32⟩ : BufTy).Contents (Elt F)),
    reshape main_v8446 main_v8447 rfl shapeCasts_S4x1x256_S4x256,
    unary main_v8447 main_v8448 (broadcastInDim S4x256x1 ![0, 1] bcast_S4x256_S4x256x1_0_1 : (⟨S4x256, .f32⟩ : BufTy).Contents (Elt F) → (⟨S4x256x1, .f32⟩ : BufTy).Contents (Elt F)),
    unary main_arg2 main_v8449 ((extractStridedSlice S4x1x16 ![0, 422, 0] · slices_S4x512x16_S4x1x16_0_422_0) : (⟨S4x512x16, .f32⟩ : BufTy).Contents (Elt F) → (⟨S4x1x16, .f32⟩ : BufTy).Contents (Elt F)),
    reshape main_v8449 main_v8450 rfl shapeCasts_S4x1x16_S4x16,
    unary main_v8450 main_v8451 (broadcastInDim S4x1x16 ![0, 2] bcast_S4x16_S4x1x16_0_2 : (⟨S4x16, .f32⟩ : BufTy).Contents (Elt F) → (⟨S4x1x16, .f32⟩ : BufTy).Contents (Elt F)),
    unary main_v8448 main_v8452 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8451 main_v8453 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8452 main_v8453 main_v8454 (mulf : (⟨S4x256x16, .f32⟩ : BufTy).Contents (Elt F) → (⟨S4x256x16, .f32⟩ : BufTy).Contents (Elt F) → (⟨S4x256x16, .f32⟩ : BufTy).Contents (Elt F)),
    binary main_v8445 main_v8454 main_v8455 (addf : (⟨S4x256x16, .f32⟩ : BufTy).Contents (Elt F) → (⟨S4x256x16, .f32⟩ : BufTy).Contents (Elt F) → (⟨S4x256x16, .f32⟩ : BufTy).Contents (Elt F)),
    unary main_arg3 main_v8456 ((extractStridedSlice S4x1x16 ![0, 422, 0] · slices_S4x512x16_S4x1x16_0_422_0) : (⟨S4x512x16, .f32⟩ : BufTy).Contents (Elt F) → (⟨S4x1x16, .f32⟩ : BufTy).Contents (Elt F)),
    reshape main_v8456 main_v8457 rfl shapeCasts_S4x1x16_S4x16,
    unary main_v8457 main_v8458 (broadcastInDim S4x1x16 ![0, 2] bcast_S4x16_S4x1x16_0_2 : (⟨S4x16, .f32⟩ : BufTy).Contents (Elt F) → (⟨S4x1x16, .f32⟩ : BufTy).Contents (Elt F)),
    unary main_v8458 main_v8459 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8455 main_v8459 main_v8460 (mulf : (⟨S4x256x16, .f32⟩ : BufTy).Contents (Elt F) → (⟨S4x256x16, .f32⟩ : BufTy).Contents (Elt F) → (⟨S4x256x16, .f32⟩ : BufTy).Contents (Elt F)),
    nullary main_cst_844 (constant S_ .f32 0x00000000#32),
    binary main_v8460 main_cst_844 main_v8461 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_845 (constantI S_ 32 422#32),
    unary main_c_845 main_v8462 (broadcastInDim S1 ![] bcast_S_S1 : (⟨S_, .i32⟩ : BufTy).Contents (Elt F) → (⟨S1, .i32⟩ : BufTy).Contents (Elt F)),
    ternary main_v8443 main_v8462 main_v8461 main_v8463 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps422_ok : (stepOps422 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step422_val (V : Valuation τ sig (Elt Ideal)) :
    after (stepOps422 (F := Ideal)) V (no_index (Proc.devRef .tc main_v8455)) = stepH 422 (by decide) (V (Proc.devRef .tc main_arg0)) (V (Proc.devRef .tc main_v3)) (V (Proc.devRef .tc main_arg2)) (V (Proc.devRef .tc main_v8435))
    ∧ after (stepOps422 (F := Ideal)) V (no_index (Proc.devRef .tc main_v8463)) = stepY 422 (by decide) (V (Proc.devRef .tc main_arg3)) (stepH 422 (by decide) (V (Proc.devRef .tc main_arg0)) (V (Proc.devRef .tc main_v3)) (V (Proc.devRef .tc main_arg2)) (V (Proc.devRef .tc main_v8435))) (V (Proc.devRef .tc main_v8443)) := by
  simp only [stepOps422]
  after_results_simp
  first | exact ⟨rfl, rfl⟩ | fail "value"
/-- Step 423 of the loop: operations 9313 … 9334 of the program. -/
abbrev stepOps423 : List (HloOp τ sig (Elt F)) :=
  [ unary main_v3 main_v8464 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8455 main_v8464 main_v8465 (mulf : (⟨S4x256x16, .f32⟩ : BufTy).Contents (Elt F) → (⟨S4x256x16, .f32⟩ : BufTy).Contents (Elt F) → (⟨S4x256x16, .f32⟩ : BufTy).Contents (Elt F)),
    unary main_arg0 main_v8466 ((extractStridedSlice S4x1x256 ![0, 423, 0] · slices_S4x512x256_S4x1x256_0_423_0) : (⟨S4x512x256, .f32⟩ : BufTy).Contents (Elt F) → (⟨S4x1x256, .f32⟩ : BufTy).Contents (Elt F)),
    reshape main_v8466 main_v8467 rfl shapeCasts_S4x1x256_S4x256,
    unary main_v8467 main_v8468 (broadcastInDim S4x256x1 ![0, 1] bcast_S4x256_S4x256x1_0_1 : (⟨S4x256, .f32⟩ : BufTy).Contents (Elt F) → (⟨S4x256x1, .f32⟩ : BufTy).Contents (Elt F)),
    unary main_arg2 main_v8469 ((extractStridedSlice S4x1x16 ![0, 423, 0] · slices_S4x512x16_S4x1x16_0_423_0) : (⟨S4x512x16, .f32⟩ : BufTy).Contents (Elt F) → (⟨S4x1x16, .f32⟩ : BufTy).Contents (Elt F)),
    reshape main_v8469 main_v8470 rfl shapeCasts_S4x1x16_S4x16,
    unary main_v8470 main_v8471 (broadcastInDim S4x1x16 ![0, 2] bcast_S4x16_S4x1x16_0_2 : (⟨S4x16, .f32⟩ : BufTy).Contents (Elt F) → (⟨S4x1x16, .f32⟩ : BufTy).Contents (Elt F)),
    unary main_v8468 main_v8472 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8471 main_v8473 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8472 main_v8473 main_v8474 (mulf : (⟨S4x256x16, .f32⟩ : BufTy).Contents (Elt F) → (⟨S4x256x16, .f32⟩ : BufTy).Contents (Elt F) → (⟨S4x256x16, .f32⟩ : BufTy).Contents (Elt F)),
    binary main_v8465 main_v8474 main_v8475 (addf : (⟨S4x256x16, .f32⟩ : BufTy).Contents (Elt F) → (⟨S4x256x16, .f32⟩ : BufTy).Contents (Elt F) → (⟨S4x256x16, .f32⟩ : BufTy).Contents (Elt F)),
    unary main_arg3 main_v8476 ((extractStridedSlice S4x1x16 ![0, 423, 0] · slices_S4x512x16_S4x1x16_0_423_0) : (⟨S4x512x16, .f32⟩ : BufTy).Contents (Elt F) → (⟨S4x1x16, .f32⟩ : BufTy).Contents (Elt F)),
    reshape main_v8476 main_v8477 rfl shapeCasts_S4x1x16_S4x16,
    unary main_v8477 main_v8478 (broadcastInDim S4x1x16 ![0, 2] bcast_S4x16_S4x1x16_0_2 : (⟨S4x16, .f32⟩ : BufTy).Contents (Elt F) → (⟨S4x1x16, .f32⟩ : BufTy).Contents (Elt F)),
    unary main_v8478 main_v8479 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8475 main_v8479 main_v8480 (mulf : (⟨S4x256x16, .f32⟩ : BufTy).Contents (Elt F) → (⟨S4x256x16, .f32⟩ : BufTy).Contents (Elt F) → (⟨S4x256x16, .f32⟩ : BufTy).Contents (Elt F)),
    nullary main_cst_846 (constant S_ .f32 0x00000000#32),
    binary main_v8480 main_cst_846 main_v8481 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_847 (constantI S_ 32 423#32),
    unary main_c_847 main_v8482 (broadcastInDim S1 ![] bcast_S_S1 : (⟨S_, .i32⟩ : BufTy).Contents (Elt F) → (⟨S1, .i32⟩ : BufTy).Contents (Elt F)),
    ternary main_v8463 main_v8482 main_v8481 main_v8483 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps423_ok : (stepOps423 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step423_val (V : Valuation τ sig (Elt Ideal)) :
    after (stepOps423 (F := Ideal)) V (no_index (Proc.devRef .tc main_v8475)) = stepH 423 (by decide) (V (Proc.devRef .tc main_arg0)) (V (Proc.devRef .tc main_v3)) (V (Proc.devRef .tc main_arg2)) (V (Proc.devRef .tc main_v8455))
    ∧ after (stepOps423 (F := Ideal)) V (no_index (Proc.devRef .tc main_v8483)) = stepY 423 (by decide) (V (Proc.devRef .tc main_arg3)) (stepH 423 (by decide) (V (Proc.devRef .tc main_arg0)) (V (Proc.devRef .tc main_v3)) (V (Proc.devRef .tc main_arg2)) (V (Proc.devRef .tc main_v8455))) (V (Proc.devRef .tc main_v8463)) := by
  simp only [stepOps423]
  after_results_simp
  first | exact ⟨rfl, rfl⟩ | fail "value"
/-- Step 424 of the loop: operations 9335 … 9356 of the program. -/
abbrev stepOps424 : List (HloOp τ sig (Elt F)) :=
  [ unary main_v3 main_v8484 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8475 main_v8484 main_v8485 (mulf : (⟨S4x256x16, .f32⟩ : BufTy).Contents (Elt F) → (⟨S4x256x16, .f32⟩ : BufTy).Contents (Elt F) → (⟨S4x256x16, .f32⟩ : BufTy).Contents (Elt F)),
    unary main_arg0 main_v8486 ((extractStridedSlice S4x1x256 ![0, 424, 0] · slices_S4x512x256_S4x1x256_0_424_0) : (⟨S4x512x256, .f32⟩ : BufTy).Contents (Elt F) → (⟨S4x1x256, .f32⟩ : BufTy).Contents (Elt F)),
    reshape main_v8486 main_v8487 rfl shapeCasts_S4x1x256_S4x256,
    unary main_v8487 main_v8488 (broadcastInDim S4x256x1 ![0, 1] bcast_S4x256_S4x256x1_0_1 : (⟨S4x256, .f32⟩ : BufTy).Contents (Elt F) → (⟨S4x256x1, .f32⟩ : BufTy).Contents (Elt F)),
    unary main_arg2 main_v8489 ((extractStridedSlice S4x1x16 ![0, 424, 0] · slices_S4x512x16_S4x1x16_0_424_0) : (⟨S4x512x16, .f32⟩ : BufTy).Contents (Elt F) → (⟨S4x1x16, .f32⟩ : BufTy).Contents (Elt F)),
    reshape main_v8489 main_v8490 rfl shapeCasts_S4x1x16_S4x16,
    unary main_v8490 main_v8491 (broadcastInDim S4x1x16 ![0, 2] bcast_S4x16_S4x1x16_0_2 : (⟨S4x16, .f32⟩ : BufTy).Contents (Elt F) → (⟨S4x1x16, .f32⟩ : BufTy).Contents (Elt F)),
    unary main_v8488 main_v8492 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8491 main_v8493 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8492 main_v8493 main_v8494 (mulf : (⟨S4x256x16, .f32⟩ : BufTy).Contents (Elt F) → (⟨S4x256x16, .f32⟩ : BufTy).Contents (Elt F) → (⟨S4x256x16, .f32⟩ : BufTy).Contents (Elt F)),
    binary main_v8485 main_v8494 main_v8495 (addf : (⟨S4x256x16, .f32⟩ : BufTy).Contents (Elt F) → (⟨S4x256x16, .f32⟩ : BufTy).Contents (Elt F) → (⟨S4x256x16, .f32⟩ : BufTy).Contents (Elt F)),
    unary main_arg3 main_v8496 ((extractStridedSlice S4x1x16 ![0, 424, 0] · slices_S4x512x16_S4x1x16_0_424_0) : (⟨S4x512x16, .f32⟩ : BufTy).Contents (Elt F) → (⟨S4x1x16, .f32⟩ : BufTy).Contents (Elt F)),
    reshape main_v8496 main_v8497 rfl shapeCasts_S4x1x16_S4x16,
    unary main_v8497 main_v8498 (broadcastInDim S4x1x16 ![0, 2] bcast_S4x16_S4x1x16_0_2 : (⟨S4x16, .f32⟩ : BufTy).Contents (Elt F) → (⟨S4x1x16, .f32⟩ : BufTy).Contents (Elt F)),
    unary main_v8498 main_v8499 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8495 main_v8499 main_v8500 (mulf : (⟨S4x256x16, .f32⟩ : BufTy).Contents (Elt F) → (⟨S4x256x16, .f32⟩ : BufTy).Contents (Elt F) → (⟨S4x256x16, .f32⟩ : BufTy).Contents (Elt F)),
    nullary main_cst_848 (constant S_ .f32 0x00000000#32),
    binary main_v8500 main_cst_848 main_v8501 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_849 (constantI S_ 32 424#32),
    unary main_c_849 main_v8502 (broadcastInDim S1 ![] bcast_S_S1 : (⟨S_, .i32⟩ : BufTy).Contents (Elt F) → (⟨S1, .i32⟩ : BufTy).Contents (Elt F)),
    ternary main_v8483 main_v8502 main_v8501 main_v8503 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps424_ok : (stepOps424 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step424_val (V : Valuation τ sig (Elt Ideal)) :
    after (stepOps424 (F := Ideal)) V (no_index (Proc.devRef .tc main_v8495)) = stepH 424 (by decide) (V (Proc.devRef .tc main_arg0)) (V (Proc.devRef .tc main_v3)) (V (Proc.devRef .tc main_arg2)) (V (Proc.devRef .tc main_v8475))
    ∧ after (stepOps424 (F := Ideal)) V (no_index (Proc.devRef .tc main_v8503)) = stepY 424 (by decide) (V (Proc.devRef .tc main_arg3)) (stepH 424 (by decide) (V (Proc.devRef .tc main_arg0)) (V (Proc.devRef .tc main_v3)) (V (Proc.devRef .tc main_arg2)) (V (Proc.devRef .tc main_v8475))) (V (Proc.devRef .tc main_v8483)) := by
  simp only [stepOps424]
  after_results_simp
  first | exact ⟨rfl, rfl⟩ | fail "value"
/-- Step 425 of the loop: operations 9357 … 9378 of the program. -/
abbrev stepOps425 : List (HloOp τ sig (Elt F)) :=
  [ unary main_v3 main_v8504 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8495 main_v8504 main_v8505 (mulf : (⟨S4x256x16, .f32⟩ : BufTy).Contents (Elt F) → (⟨S4x256x16, .f32⟩ : BufTy).Contents (Elt F) → (⟨S4x256x16, .f32⟩ : BufTy).Contents (Elt F)),
    unary main_arg0 main_v8506 ((extractStridedSlice S4x1x256 ![0, 425, 0] · slices_S4x512x256_S4x1x256_0_425_0) : (⟨S4x512x256, .f32⟩ : BufTy).Contents (Elt F) → (⟨S4x1x256, .f32⟩ : BufTy).Contents (Elt F)),
    reshape main_v8506 main_v8507 rfl shapeCasts_S4x1x256_S4x256,
    unary main_v8507 main_v8508 (broadcastInDim S4x256x1 ![0, 1] bcast_S4x256_S4x256x1_0_1 : (⟨S4x256, .f32⟩ : BufTy).Contents (Elt F) → (⟨S4x256x1, .f32⟩ : BufTy).Contents (Elt F)),
    unary main_arg2 main_v8509 ((extractStridedSlice S4x1x16 ![0, 425, 0] · slices_S4x512x16_S4x1x16_0_425_0) : (⟨S4x512x16, .f32⟩ : BufTy).Contents (Elt F) → (⟨S4x1x16, .f32⟩ : BufTy).Contents (Elt F)),
    reshape main_v8509 main_v8510 rfl shapeCasts_S4x1x16_S4x16,
    unary main_v8510 main_v8511 (broadcastInDim S4x1x16 ![0, 2] bcast_S4x16_S4x1x16_0_2 : (⟨S4x16, .f32⟩ : BufTy).Contents (Elt F) → (⟨S4x1x16, .f32⟩ : BufTy).Contents (Elt F)),
    unary main_v8508 main_v8512 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8511 main_v8513 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8512 main_v8513 main_v8514 (mulf : (⟨S4x256x16, .f32⟩ : BufTy).Contents (Elt F) → (⟨S4x256x16, .f32⟩ : BufTy).Contents (Elt F) → (⟨S4x256x16, .f32⟩ : BufTy).Contents (Elt F)),
    binary main_v8505 main_v8514 main_v8515 (addf : (⟨S4x256x16, .f32⟩ : BufTy).Contents (Elt F) → (⟨S4x256x16, .f32⟩ : BufTy).Contents (Elt F) → (⟨S4x256x16, .f32⟩ : BufTy).Contents (Elt F)),
    unary main_arg3 main_v8516 ((extractStridedSlice S4x1x16 ![0, 425, 0] · slices_S4x512x16_S4x1x16_0_425_0) : (⟨S4x512x16, .f32⟩ : BufTy).Contents (Elt F) → (⟨S4x1x16, .f32⟩ : BufTy).Contents (Elt F)),
    reshape main_v8516 main_v8517 rfl shapeCasts_S4x1x16_S4x16,
    unary main_v8517 main_v8518 (broadcastInDim S4x1x16 ![0, 2] bcast_S4x16_S4x1x16_0_2 : (⟨S4x16, .f32⟩ : BufTy).Contents (Elt F) → (⟨S4x1x16, .f32⟩ : BufTy).Contents (Elt F)),
    unary main_v8518 main_v8519 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8515 main_v8519 main_v8520 (mulf : (⟨S4x256x16, .f32⟩ : BufTy).Contents (Elt F) → (⟨S4x256x16, .f32⟩ : BufTy).Contents (Elt F) → (⟨S4x256x16, .f32⟩ : BufTy).Contents (Elt F)),
    nullary main_cst_850 (constant S_ .f32 0x00000000#32),
    binary main_v8520 main_cst_850 main_v8521 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_851 (constantI S_ 32 425#32),
    unary main_c_851 main_v8522 (broadcastInDim S1 ![] bcast_S_S1 : (⟨S_, .i32⟩ : BufTy).Contents (Elt F) → (⟨S1, .i32⟩ : BufTy).Contents (Elt F)),
    ternary main_v8503 main_v8522 main_v8521 main_v8523 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps425_ok : (stepOps425 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step425_val (V : Valuation τ sig (Elt Ideal)) :
    after (stepOps425 (F := Ideal)) V (no_index (Proc.devRef .tc main_v8515)) = stepH 425 (by decide) (V (Proc.devRef .tc main_arg0)) (V (Proc.devRef .tc main_v3)) (V (Proc.devRef .tc main_arg2)) (V (Proc.devRef .tc main_v8495))
    ∧ after (stepOps425 (F := Ideal)) V (no_index (Proc.devRef .tc main_v8523)) = stepY 425 (by decide) (V (Proc.devRef .tc main_arg3)) (stepH 425 (by decide) (V (Proc.devRef .tc main_arg0)) (V (Proc.devRef .tc main_v3)) (V (Proc.devRef .tc main_arg2)) (V (Proc.devRef .tc main_v8495))) (V (Proc.devRef .tc main_v8503)) := by
  simp only [stepOps425]
  after_results_simp
  first | exact ⟨rfl, rfl⟩ | fail "value"
/-- Step 426 of the loop: operations 9379 … 9400 of the program. -/
abbrev stepOps426 : List (HloOp τ sig (Elt F)) :=
  [ unary main_v3 main_v8524 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8515 main_v8524 main_v8525 (mulf : (⟨S4x256x16, .f32⟩ : BufTy).Contents (Elt F) → (⟨S4x256x16, .f32⟩ : BufTy).Contents (Elt F) → (⟨S4x256x16, .f32⟩ : BufTy).Contents (Elt F)),
    unary main_arg0 main_v8526 ((extractStridedSlice S4x1x256 ![0, 426, 0] · slices_S4x512x256_S4x1x256_0_426_0) : (⟨S4x512x256, .f32⟩ : BufTy).Contents (Elt F) → (⟨S4x1x256, .f32⟩ : BufTy).Contents (Elt F)),
    reshape main_v8526 main_v8527 rfl shapeCasts_S4x1x256_S4x256,
    unary main_v8527 main_v8528 (broadcastInDim S4x256x1 ![0, 1] bcast_S4x256_S4x256x1_0_1 : (⟨S4x256, .f32⟩ : BufTy).Contents (Elt F) → (⟨S4x256x1, .f32⟩ : BufTy).Contents (Elt F)),
    unary main_arg2 main_v8529 ((extractStridedSlice S4x1x16 ![0, 426, 0] · slices_S4x512x16_S4x1x16_0_426_0) : (⟨S4x512x16, .f32⟩ : BufTy).Contents (Elt F) → (⟨S4x1x16, .f32⟩ : BufTy).Contents (Elt F)),
    reshape main_v8529 main_v8530 rfl shapeCasts_S4x1x16_S4x16,
    unary main_v8530 main_v8531 (broadcastInDim S4x1x16 ![0, 2] bcast_S4x16_S4x1x16_0_2 : (⟨S4x16, .f32⟩ : BufTy).Contents (Elt F) → (⟨S4x1x16, .f32⟩ : BufTy).Contents (Elt F)),
    unary main_v8528 main_v8532 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8531 main_v8533 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8532 main_v8533 main_v8534 (mulf : (⟨S4x256x16, .f32⟩ : BufTy).Contents (Elt F) → (⟨S4x256x16, .f32⟩ : BufTy).Contents (Elt F) → (⟨S4x256x16, .f32⟩ : BufTy).Contents (Elt F)),
    binary main_v8525 main_v8534 main_v8535 (addf : (⟨S4x256x16, .f32⟩ : BufTy).Contents (Elt F) → (⟨S4x256x16, .f32⟩ : BufTy).Contents (Elt F) → (⟨S4x256x16, .f32⟩ : BufTy).Contents (Elt F)),
    unary main_arg3 main_v8536 ((extractStridedSlice S4x1x16 ![0, 426, 0] · slices_S4x512x16_S4x1x16_0_426_0) : (⟨S4x512x16, .f32⟩ : BufTy).Contents (Elt F) → (⟨S4x1x16, .f32⟩ : BufTy).Contents (Elt F)),
    reshape main_v8536 main_v8537 rfl shapeCasts_S4x1x16_S4x16,
    unary main_v8537 main_v8538 (broadcastInDim S4x1x16 ![0, 2] bcast_S4x16_S4x1x16_0_2 : (⟨S4x16, .f32⟩ : BufTy).Contents (Elt F) → (⟨S4x1x16, .f32⟩ : BufTy).Contents (Elt F)),
    unary main_v8538 main_v8539 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8535 main_v8539 main_v8540 (mulf : (⟨S4x256x16, .f32⟩ : BufTy).Contents (Elt F) → (⟨S4x256x16, .f32⟩ : BufTy).Contents (Elt F) → (⟨S4x256x16, .f32⟩ : BufTy).Contents (Elt F)),
    nullary main_cst_852 (constant S_ .f32 0x00000000#32),
    binary main_v8540 main_cst_852 main_v8541 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_853 (constantI S_ 32 426#32),
    unary main_c_853 main_v8542 (broadcastInDim S1 ![] bcast_S_S1 : (⟨S_, .i32⟩ : BufTy).Contents (Elt F) → (⟨S1, .i32⟩ : BufTy).Contents (Elt F)),
    ternary main_v8523 main_v8542 main_v8541 main_v8543 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps426_ok : (stepOps426 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step426_val (V : Valuation τ sig (Elt Ideal)) :
    after (stepOps426 (F := Ideal)) V (no_index (Proc.devRef .tc main_v8535)) = stepH 426 (by decide) (V (Proc.devRef .tc main_arg0)) (V (Proc.devRef .tc main_v3)) (V (Proc.devRef .tc main_arg2)) (V (Proc.devRef .tc main_v8515))
    ∧ after (stepOps426 (F := Ideal)) V (no_index (Proc.devRef .tc main_v8543)) = stepY 426 (by decide) (V (Proc.devRef .tc main_arg3)) (stepH 426 (by decide) (V (Proc.devRef .tc main_arg0)) (V (Proc.devRef .tc main_v3)) (V (Proc.devRef .tc main_arg2)) (V (Proc.devRef .tc main_v8515))) (V (Proc.devRef .tc main_v8523)) := by
  simp only [stepOps426]
  after_results_simp
  first | exact ⟨rfl, rfl⟩ | fail "value"
/-- Step 427 of the loop: operations 9401 … 9422 of the program. -/
abbrev stepOps427 : List (HloOp τ sig (Elt F)) :=
  [ unary main_v3 main_v8544 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8535 main_v8544 main_v8545 (mulf : (⟨S4x256x16, .f32⟩ : BufTy).Contents (Elt F) → (⟨S4x256x16, .f32⟩ : BufTy).Contents (Elt F) → (⟨S4x256x16, .f32⟩ : BufTy).Contents (Elt F)),
    unary main_arg0 main_v8546 ((extractStridedSlice S4x1x256 ![0, 427, 0] · slices_S4x512x256_S4x1x256_0_427_0) : (⟨S4x512x256, .f32⟩ : BufTy).Contents (Elt F) → (⟨S4x1x256, .f32⟩ : BufTy).Contents (Elt F)),
    reshape main_v8546 main_v8547 rfl shapeCasts_S4x1x256_S4x256,
    unary main_v8547 main_v8548 (broadcastInDim S4x256x1 ![0, 1] bcast_S4x256_S4x256x1_0_1 : (⟨S4x256, .f32⟩ : BufTy).Contents (Elt F) → (⟨S4x256x1, .f32⟩ : BufTy).Contents (Elt F)),
    unary main_arg2 main_v8549 ((extractStridedSlice S4x1x16 ![0, 427, 0] · slices_S4x512x16_S4x1x16_0_427_0) : (⟨S4x512x16, .f32⟩ : BufTy).Contents (Elt F) → (⟨S4x1x16, .f32⟩ : BufTy).Contents (Elt F)),
    reshape main_v8549 main_v8550 rfl shapeCasts_S4x1x16_S4x16,
    unary main_v8550 main_v8551 (broadcastInDim S4x1x16 ![0, 2] bcast_S4x16_S4x1x16_0_2 : (⟨S4x16, .f32⟩ : BufTy).Contents (Elt F) → (⟨S4x1x16, .f32⟩ : BufTy).Contents (Elt F)),
    unary main_v8548 main_v8552 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8551 main_v8553 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8552 main_v8553 main_v8554 (mulf : (⟨S4x256x16, .f32⟩ : BufTy).Contents (Elt F) → (⟨S4x256x16, .f32⟩ : BufTy).Contents (Elt F) → (⟨S4x256x16, .f32⟩ : BufTy).Contents (Elt F)),
    binary main_v8545 main_v8554 main_v8555 (addf : (⟨S4x256x16, .f32⟩ : BufTy).Contents (Elt F) → (⟨S4x256x16, .f32⟩ : BufTy).Contents (Elt F) → (⟨S4x256x16, .f32⟩ : BufTy).Contents (Elt F)),
    unary main_arg3 main_v8556 ((extractStridedSlice S4x1x16 ![0, 427, 0] · slices_S4x512x16_S4x1x16_0_427_0) : (⟨S4x512x16, .f32⟩ : BufTy).Contents (Elt F) → (⟨S4x1x16, .f32⟩ : BufTy).Contents (Elt F)),
    reshape main_v8556 main_v8557 rfl shapeCasts_S4x1x16_S4x16,
    unary main_v8557 main_v8558 (broadcastInDim S4x1x16 ![0, 2] bcast_S4x16_S4x1x16_0_2 : (⟨S4x16, .f32⟩ : BufTy).Contents (Elt F) → (⟨S4x1x16, .f32⟩ : BufTy).Contents (Elt F)),
    unary main_v8558 main_v8559 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8555 main_v8559 main_v8560 (mulf : (⟨S4x256x16, .f32⟩ : BufTy).Contents (Elt F) → (⟨S4x256x16, .f32⟩ : BufTy).Contents (Elt F) → (⟨S4x256x16, .f32⟩ : BufTy).Contents (Elt F)),
    nullary main_cst_854 (constant S_ .f32 0x00000000#32),
    binary main_v8560 main_cst_854 main_v8561 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_855 (constantI S_ 32 427#32),
    unary main_c_855 main_v8562 (broadcastInDim S1 ![] bcast_S_S1 : (⟨S_, .i32⟩ : BufTy).Contents (Elt F) → (⟨S1, .i32⟩ : BufTy).Contents (Elt F)),
    ternary main_v8543 main_v8562 main_v8561 main_v8563 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps427_ok : (stepOps427 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step427_val (V : Valuation τ sig (Elt Ideal)) :
    after (stepOps427 (F := Ideal)) V (no_index (Proc.devRef .tc main_v8555)) = stepH 427 (by decide) (V (Proc.devRef .tc main_arg0)) (V (Proc.devRef .tc main_v3)) (V (Proc.devRef .tc main_arg2)) (V (Proc.devRef .tc main_v8535))
    ∧ after (stepOps427 (F := Ideal)) V (no_index (Proc.devRef .tc main_v8563)) = stepY 427 (by decide) (V (Proc.devRef .tc main_arg3)) (stepH 427 (by decide) (V (Proc.devRef .tc main_arg0)) (V (Proc.devRef .tc main_v3)) (V (Proc.devRef .tc main_arg2)) (V (Proc.devRef .tc main_v8535))) (V (Proc.devRef .tc main_v8543)) := by
  simp only [stepOps427]
  after_results_simp
  first | exact ⟨rfl, rfl⟩ | fail "value"
/-- Step 428 of the loop: operations 9423 … 9444 of the program. -/
abbrev stepOps428 : List (HloOp τ sig (Elt F)) :=
  [ unary main_v3 main_v8564 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8555 main_v8564 main_v8565 (mulf : (⟨S4x256x16, .f32⟩ : BufTy).Contents (Elt F) → (⟨S4x256x16, .f32⟩ : BufTy).Contents (Elt F) → (⟨S4x256x16, .f32⟩ : BufTy).Contents (Elt F)),
    unary main_arg0 main_v8566 ((extractStridedSlice S4x1x256 ![0, 428, 0] · slices_S4x512x256_S4x1x256_0_428_0) : (⟨S4x512x256, .f32⟩ : BufTy).Contents (Elt F) → (⟨S4x1x256, .f32⟩ : BufTy).Contents (Elt F)),
    reshape main_v8566 main_v8567 rfl shapeCasts_S4x1x256_S4x256,
    unary main_v8567 main_v8568 (broadcastInDim S4x256x1 ![0, 1] bcast_S4x256_S4x256x1_0_1 : (⟨S4x256, .f32⟩ : BufTy).Contents (Elt F) → (⟨S4x256x1, .f32⟩ : BufTy).Contents (Elt F)),
    unary main_arg2 main_v8569 ((extractStridedSlice S4x1x16 ![0, 428, 0] · slices_S4x512x16_S4x1x16_0_428_0) : (⟨S4x512x16, .f32⟩ : BufTy).Contents (Elt F) → (⟨S4x1x16, .f32⟩ : BufTy).Contents (Elt F)),
    reshape main_v8569 main_v8570 rfl shapeCasts_S4x1x16_S4x16,
    unary main_v8570 main_v8571 (broadcastInDim S4x1x16 ![0, 2] bcast_S4x16_S4x1x16_0_2 : (⟨S4x16, .f32⟩ : BufTy).Contents (Elt F) → (⟨S4x1x16, .f32⟩ : BufTy).Contents (Elt F)),
    unary main_v8568 main_v8572 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8571 main_v8573 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8572 main_v8573 main_v8574 (mulf : (⟨S4x256x16, .f32⟩ : BufTy).Contents (Elt F) → (⟨S4x256x16, .f32⟩ : BufTy).Contents (Elt F) → (⟨S4x256x16, .f32⟩ : BufTy).Contents (Elt F)),
    binary main_v8565 main_v8574 main_v8575 (addf : (⟨S4x256x16, .f32⟩ : BufTy).Contents (Elt F) → (⟨S4x256x16, .f32⟩ : BufTy).Contents (Elt F) → (⟨S4x256x16, .f32⟩ : BufTy).Contents (Elt F)),
    unary main_arg3 main_v8576 ((extractStridedSlice S4x1x16 ![0, 428, 0] · slices_S4x512x16_S4x1x16_0_428_0) : (⟨S4x512x16, .f32⟩ : BufTy).Contents (Elt F) → (⟨S4x1x16, .f32⟩ : BufTy).Contents (Elt F)),
    reshape main_v8576 main_v8577 rfl shapeCasts_S4x1x16_S4x16,
    unary main_v8577 main_v8578 (broadcastInDim S4x1x16 ![0, 2] bcast_S4x16_S4x1x16_0_2 : (⟨S4x16, .f32⟩ : BufTy).Contents (Elt F) → (⟨S4x1x16, .f32⟩ : BufTy).Contents (Elt F)),
    unary main_v8578 main_v8579 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8575 main_v8579 main_v8580 (mulf : (⟨S4x256x16, .f32⟩ : BufTy).Contents (Elt F) → (⟨S4x256x16, .f32⟩ : BufTy).Contents (Elt F) → (⟨S4x256x16, .f32⟩ : BufTy).Contents (Elt F)),
    nullary main_cst_856 (constant S_ .f32 0x00000000#32),
    binary main_v8580 main_cst_856 main_v8581 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_857 (constantI S_ 32 428#32),
    unary main_c_857 main_v8582 (broadcastInDim S1 ![] bcast_S_S1 : (⟨S_, .i32⟩ : BufTy).Contents (Elt F) → (⟨S1, .i32⟩ : BufTy).Contents (Elt F)),
    ternary main_v8563 main_v8582 main_v8581 main_v8583 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps428_ok : (stepOps428 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step428_val (V : Valuation τ sig (Elt Ideal)) :
    after (stepOps428 (F := Ideal)) V (no_index (Proc.devRef .tc main_v8575)) = stepH 428 (by decide) (V (Proc.devRef .tc main_arg0)) (V (Proc.devRef .tc main_v3)) (V (Proc.devRef .tc main_arg2)) (V (Proc.devRef .tc main_v8555))
    ∧ after (stepOps428 (F := Ideal)) V (no_index (Proc.devRef .tc main_v8583)) = stepY 428 (by decide) (V (Proc.devRef .tc main_arg3)) (stepH 428 (by decide) (V (Proc.devRef .tc main_arg0)) (V (Proc.devRef .tc main_v3)) (V (Proc.devRef .tc main_arg2)) (V (Proc.devRef .tc main_v8555))) (V (Proc.devRef .tc main_v8563)) := by
  simp only [stepOps428]
  after_results_simp
  first | exact ⟨rfl, rfl⟩ | fail "value"
/-- Step 429 of the loop: operations 9445 … 9466 of the program. -/
abbrev stepOps429 : List (HloOp τ sig (Elt F)) :=
  [ unary main_v3 main_v8584 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8575 main_v8584 main_v8585 (mulf : (⟨S4x256x16, .f32⟩ : BufTy).Contents (Elt F) → (⟨S4x256x16, .f32⟩ : BufTy).Contents (Elt F) → (⟨S4x256x16, .f32⟩ : BufTy).Contents (Elt F)),
    unary main_arg0 main_v8586 ((extractStridedSlice S4x1x256 ![0, 429, 0] · slices_S4x512x256_S4x1x256_0_429_0) : (⟨S4x512x256, .f32⟩ : BufTy).Contents (Elt F) → (⟨S4x1x256, .f32⟩ : BufTy).Contents (Elt F)),
    reshape main_v8586 main_v8587 rfl shapeCasts_S4x1x256_S4x256,
    unary main_v8587 main_v8588 (broadcastInDim S4x256x1 ![0, 1] bcast_S4x256_S4x256x1_0_1 : (⟨S4x256, .f32⟩ : BufTy).Contents (Elt F) → (⟨S4x256x1, .f32⟩ : BufTy).Contents (Elt F)),
    unary main_arg2 main_v8589 ((extractStridedSlice S4x1x16 ![0, 429, 0] · slices_S4x512x16_S4x1x16_0_429_0) : (⟨S4x512x16, .f32⟩ : BufTy).Contents (Elt F) → (⟨S4x1x16, .f32⟩ : BufTy).Contents (Elt F)),
    reshape main_v8589 main_v8590 rfl shapeCasts_S4x1x16_S4x16,
    unary main_v8590 main_v8591 (broadcastInDim S4x1x16 ![0, 2] bcast_S4x16_S4x1x16_0_2 : (⟨S4x16, .f32⟩ : BufTy).Contents (Elt F) → (⟨S4x1x16, .f32⟩ : BufTy).Contents (Elt F)),
    unary main_v8588 main_v8592 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8591 main_v8593 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8592 main_v8593 main_v8594 (mulf : (⟨S4x256x16, .f32⟩ : BufTy).Contents (Elt F) → (⟨S4x256x16, .f32⟩ : BufTy).Contents (Elt F) → (⟨S4x256x16, .f32⟩ : BufTy).Contents (Elt F)),
    binary main_v8585 main_v8594 main_v8595 (addf : (⟨S4x256x16, .f32⟩ : BufTy).Contents (Elt F) → (⟨S4x256x16, .f32⟩ : BufTy).Contents (Elt F) → (⟨S4x256x16, .f32⟩ : BufTy).Contents (Elt F)),
    unary main_arg3 main_v8596 ((extractStridedSlice S4x1x16 ![0, 429, 0] · slices_S4x512x16_S4x1x16_0_429_0) : (⟨S4x512x16, .f32⟩ : BufTy).Contents (Elt F) → (⟨S4x1x16, .f32⟩ : BufTy).Contents (Elt F)),
    reshape main_v8596 main_v8597 rfl shapeCasts_S4x1x16_S4x16,
    unary main_v8597 main_v8598 (broadcastInDim S4x1x16 ![0, 2] bcast_S4x16_S4x1x16_0_2 : (⟨S4x16, .f32⟩ : BufTy).Contents (Elt F) → (⟨S4x1x16, .f32⟩ : BufTy).Contents (Elt F)),
    unary main_v8598 main_v8599 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8595 main_v8599 main_v8600 (mulf : (⟨S4x256x16, .f32⟩ : BufTy).Contents (Elt F) → (⟨S4x256x16, .f32⟩ : BufTy).Contents (Elt F) → (⟨S4x256x16, .f32⟩ : BufTy).Contents (Elt F)),
    nullary main_cst_858 (constant S_ .f32 0x00000000#32),
    binary main_v8600 main_cst_858 main_v8601 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_859 (constantI S_ 32 429#32),
    unary main_c_859 main_v8602 (broadcastInDim S1 ![] bcast_S_S1 : (⟨S_, .i32⟩ : BufTy).Contents (Elt F) → (⟨S1, .i32⟩ : BufTy).Contents (Elt F)),
    ternary main_v8583 main_v8602 main_v8601 main_v8603 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps429_ok : (stepOps429 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step429_val (V : Valuation τ sig (Elt Ideal)) :
    after (stepOps429 (F := Ideal)) V (no_index (Proc.devRef .tc main_v8595)) = stepH 429 (by decide) (V (Proc.devRef .tc main_arg0)) (V (Proc.devRef .tc main_v3)) (V (Proc.devRef .tc main_arg2)) (V (Proc.devRef .tc main_v8575))
    ∧ after (stepOps429 (F := Ideal)) V (no_index (Proc.devRef .tc main_v8603)) = stepY 429 (by decide) (V (Proc.devRef .tc main_arg3)) (stepH 429 (by decide) (V (Proc.devRef .tc main_arg0)) (V (Proc.devRef .tc main_v3)) (V (Proc.devRef .tc main_arg2)) (V (Proc.devRef .tc main_v8575))) (V (Proc.devRef .tc main_v8583)) := by
  simp only [stepOps429]
  after_results_simp
  first | exact ⟨rfl, rfl⟩ | fail "value"
/-- Step 430 of the loop: operations 9467 … 9488 of the program. -/
abbrev stepOps430 : List (HloOp τ sig (Elt F)) :=
  [ unary main_v3 main_v8604 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8595 main_v8604 main_v8605 (mulf : (⟨S4x256x16, .f32⟩ : BufTy).Contents (Elt F) → (⟨S4x256x16, .f32⟩ : BufTy).Contents (Elt F) → (⟨S4x256x16, .f32⟩ : BufTy).Contents (Elt F)),
    unary main_arg0 main_v8606 ((extractStridedSlice S4x1x256 ![0, 430, 0] · slices_S4x512x256_S4x1x256_0_430_0) : (⟨S4x512x256, .f32⟩ : BufTy).Contents (Elt F) → (⟨S4x1x256, .f32⟩ : BufTy).Contents (Elt F)),
    reshape main_v8606 main_v8607 rfl shapeCasts_S4x1x256_S4x256,
    unary main_v8607 main_v8608 (broadcastInDim S4x256x1 ![0, 1] bcast_S4x256_S4x256x1_0_1 : (⟨S4x256, .f32⟩ : BufTy).Contents (Elt F) → (⟨S4x256x1, .f32⟩ : BufTy).Contents (Elt F)),
    unary main_arg2 main_v8609 ((extractStridedSlice S4x1x16 ![0, 430, 0] · slices_S4x512x16_S4x1x16_0_430_0) : (⟨S4x512x16, .f32⟩ : BufTy).Contents (Elt F) → (⟨S4x1x16, .f32⟩ : BufTy).Contents (Elt F)),
    reshape main_v8609 main_v8610 rfl shapeCasts_S4x1x16_S4x16,
    unary main_v8610 main_v8611 (broadcastInDim S4x1x16 ![0, 2] bcast_S4x16_S4x1x16_0_2 : (⟨S4x16, .f32⟩ : BufTy).Contents (Elt F) → (⟨S4x1x16, .f32⟩ : BufTy).Contents (Elt F)),
    unary main_v8608 main_v8612 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8611 main_v8613 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8612 main_v8613 main_v8614 (mulf : (⟨S4x256x16, .f32⟩ : BufTy).Contents (Elt F) → (⟨S4x256x16, .f32⟩ : BufTy).Contents (Elt F) → (⟨S4x256x16, .f32⟩ : BufTy).Contents (Elt F)),
    binary main_v8605 main_v8614 main_v8615 (addf : (⟨S4x256x16, .f32⟩ : BufTy).Contents (Elt F) → (⟨S4x256x16, .f32⟩ : BufTy).Contents (Elt F) → (⟨S4x256x16, .f32⟩ : BufTy).Contents (Elt F)),
    unary main_arg3 main_v8616 ((extractStridedSlice S4x1x16 ![0, 430, 0] · slices_S4x512x16_S4x1x16_0_430_0) : (⟨S4x512x16, .f32⟩ : BufTy).Contents (Elt F) → (⟨S4x1x16, .f32⟩ : BufTy).Contents (Elt F)),
    reshape main_v8616 main_v8617 rfl shapeCasts_S4x1x16_S4x16,
    unary main_v8617 main_v8618 (broadcastInDim S4x1x16 ![0, 2] bcast_S4x16_S4x1x16_0_2 : (⟨S4x16, .f32⟩ : BufTy).Contents (Elt F) → (⟨S4x1x16, .f32⟩ : BufTy).Contents (Elt F)),
    unary main_v8618 main_v8619 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8615 main_v8619 main_v8620 (mulf : (⟨S4x256x16, .f32⟩ : BufTy).Contents (Elt F) → (⟨S4x256x16, .f32⟩ : BufTy).Contents (Elt F) → (⟨S4x256x16, .f32⟩ : BufTy).Contents (Elt F)),
    nullary main_cst_860 (constant S_ .f32 0x00000000#32),
    binary main_v8620 main_cst_860 main_v8621 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_861 (constantI S_ 32 430#32),
    unary main_c_861 main_v8622 (broadcastInDim S1 ![] bcast_S_S1 : (⟨S_, .i32⟩ : BufTy).Contents (Elt F) → (⟨S1, .i32⟩ : BufTy).Contents (Elt F)),
    ternary main_v8603 main_v8622 main_v8621 main_v8623 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps430_ok : (stepOps430 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step430_val (V : Valuation τ sig (Elt Ideal)) :
    after (stepOps430 (F := Ideal)) V (no_index (Proc.devRef .tc main_v8615)) = stepH 430 (by decide) (V (Proc.devRef .tc main_arg0)) (V (Proc.devRef .tc main_v3)) (V (Proc.devRef .tc main_arg2)) (V (Proc.devRef .tc main_v8595))
    ∧ after (stepOps430 (F := Ideal)) V (no_index (Proc.devRef .tc main_v8623)) = stepY 430 (by decide) (V (Proc.devRef .tc main_arg3)) (stepH 430 (by decide) (V (Proc.devRef .tc main_arg0)) (V (Proc.devRef .tc main_v3)) (V (Proc.devRef .tc main_arg2)) (V (Proc.devRef .tc main_v8595))) (V (Proc.devRef .tc main_v8603)) := by
  simp only [stepOps430]
  after_results_simp
  first | exact ⟨rfl, rfl⟩ | fail "value"
/-- Step 431 of the loop: operations 9489 … 9510 of the program. -/
abbrev stepOps431 : List (HloOp τ sig (Elt F)) :=
  [ unary main_v3 main_v8624 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8615 main_v8624 main_v8625 (mulf : (⟨S4x256x16, .f32⟩ : BufTy).Contents (Elt F) → (⟨S4x256x16, .f32⟩ : BufTy).Contents (Elt F) → (⟨S4x256x16, .f32⟩ : BufTy).Contents (Elt F)),
    unary main_arg0 main_v8626 ((extractStridedSlice S4x1x256 ![0, 431, 0] · slices_S4x512x256_S4x1x256_0_431_0) : (⟨S4x512x256, .f32⟩ : BufTy).Contents (Elt F) → (⟨S4x1x256, .f32⟩ : BufTy).Contents (Elt F)),
    reshape main_v8626 main_v8627 rfl shapeCasts_S4x1x256_S4x256,
    unary main_v8627 main_v8628 (broadcastInDim S4x256x1 ![0, 1] bcast_S4x256_S4x256x1_0_1 : (⟨S4x256, .f32⟩ : BufTy).Contents (Elt F) → (⟨S4x256x1, .f32⟩ : BufTy).Contents (Elt F)),
    unary main_arg2 main_v8629 ((extractStridedSlice S4x1x16 ![0, 431, 0] · slices_S4x512x16_S4x1x16_0_431_0) : (⟨S4x512x16, .f32⟩ : BufTy).Contents (Elt F) → (⟨S4x1x16, .f32⟩ : BufTy).Contents (Elt F)),
    reshape main_v8629 main_v8630 rfl shapeCasts_S4x1x16_S4x16,
    unary main_v8630 main_v8631 (broadcastInDim S4x1x16 ![0, 2] bcast_S4x16_S4x1x16_0_2 : (⟨S4x16, .f32⟩ : BufTy).Contents (Elt F) → (⟨S4x1x16, .f32⟩ : BufTy).Contents (Elt F)),
    unary main_v8628 main_v8632 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8631 main_v8633 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8632 main_v8633 main_v8634 (mulf : (⟨S4x256x16, .f32⟩ : BufTy).Contents (Elt F) → (⟨S4x256x16, .f32⟩ : BufTy).Contents (Elt F) → (⟨S4x256x16, .f32⟩ : BufTy).Contents (Elt F)),
    binary main_v8625 main_v8634 main_v8635 (addf : (⟨S4x256x16, .f32⟩ : BufTy).Contents (Elt F) → (⟨S4x256x16, .f32⟩ : BufTy).Contents (Elt F) → (⟨S4x256x16, .f32⟩ : BufTy).Contents (Elt F)),
    unary main_arg3 main_v8636 ((extractStridedSlice S4x1x16 ![0, 431, 0] · slices_S4x512x16_S4x1x16_0_431_0) : (⟨S4x512x16, .f32⟩ : BufTy).Contents (Elt F) → (⟨S4x1x16, .f32⟩ : BufTy).Contents (Elt F)),
    reshape main_v8636 main_v8637 rfl shapeCasts_S4x1x16_S4x16,
    unary main_v8637 main_v8638 (broadcastInDim S4x1x16 ![0, 2] bcast_S4x16_S4x1x16_0_2 : (⟨S4x16, .f32⟩ : BufTy).Contents (Elt F) → (⟨S4x1x16, .f32⟩ : BufTy).Contents (Elt F)),
    unary main_v8638 main_v8639 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8635 main_v8639 main_v8640 (mulf : (⟨S4x256x16, .f32⟩ : BufTy).Contents (Elt F) → (⟨S4x256x16, .f32⟩ : BufTy).Contents (Elt F) → (⟨S4x256x16, .f32⟩ : BufTy).Contents (Elt F)),
    nullary main_cst_862 (constant S_ .f32 0x00000000#32),
    binary main_v8640 main_cst_862 main_v8641 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_863 (constantI S_ 32 431#32),
    unary main_c_863 main_v8642 (broadcastInDim S1 ![] bcast_S_S1 : (⟨S_, .i32⟩ : BufTy).Contents (Elt F) → (⟨S1, .i32⟩ : BufTy).Contents (Elt F)),
    ternary main_v8623 main_v8642 main_v8641 main_v8643 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps431_ok : (stepOps431 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step431_val (V : Valuation τ sig (Elt Ideal)) :
    after (stepOps431 (F := Ideal)) V (no_index (Proc.devRef .tc main_v8635)) = stepH 431 (by decide) (V (Proc.devRef .tc main_arg0)) (V (Proc.devRef .tc main_v3)) (V (Proc.devRef .tc main_arg2)) (V (Proc.devRef .tc main_v8615))
    ∧ after (stepOps431 (F := Ideal)) V (no_index (Proc.devRef .tc main_v8643)) = stepY 431 (by decide) (V (Proc.devRef .tc main_arg3)) (stepH 431 (by decide) (V (Proc.devRef .tc main_arg0)) (V (Proc.devRef .tc main_v3)) (V (Proc.devRef .tc main_arg2)) (V (Proc.devRef .tc main_v8615))) (V (Proc.devRef .tc main_v8623)) := by
  simp only [stepOps431]
  after_results_simp
  first | exact ⟨rfl, rfl⟩ | fail "value"

end Cert.ReferenceIdeal.RefRun

end
-- ==== Proof.RefTableStep27.lean ====
/-
  Steps 432 … 447 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 432 of the loop: operations 9511 … 9532 of the program. -/
abbrev stepOps432 : List (HloOp τ sig (Elt F)) :=
  [ unary main_v3 main_v8644 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8635 main_v8644 main_v8645 (mulf : (⟨S4x256x16, .f32⟩ : BufTy).Contents (Elt F) → (⟨S4x256x16, .f32⟩ : BufTy).Contents (Elt F) → (⟨S4x256x16, .f32⟩ : BufTy).Contents (Elt F)),
    unary main_arg0 main_v8646 ((extractStridedSlice S4x1x256 ![0, 432, 0] · slices_S4x512x256_S4x1x256_0_432_0) : (⟨S4x512x256, .f32⟩ : BufTy).Contents (Elt F) → (⟨S4x1x256, .f32⟩ : BufTy).Contents (Elt F)),
    reshape main_v8646 main_v8647 rfl shapeCasts_S4x1x256_S4x256,
    unary main_v8647 main_v8648 (broadcastInDim S4x256x1 ![0, 1] bcast_S4x256_S4x256x1_0_1 : (⟨S4x256, .f32⟩ : BufTy).Contents (Elt F) → (⟨S4x256x1, .f32⟩ : BufTy).Contents (Elt F)),
    unary main_arg2 main_v8649 ((extractStridedSlice S4x1x16 ![0, 432, 0] · slices_S4x512x16_S4x1x16_0_432_0) : (⟨S4x512x16, .f32⟩ : BufTy).Contents (Elt F) → (⟨S4x1x16, .f32⟩ : BufTy).Contents (Elt F)),
    reshape main_v8649 main_v8650 rfl shapeCasts_S4x1x16_S4x16,
    unary main_v8650 main_v8651 (broadcastInDim S4x1x16 ![0, 2] bcast_S4x16_S4x1x16_0_2 : (⟨S4x16, .f32⟩ : BufTy).Contents (Elt F) → (⟨S4x1x16, .f32⟩ : BufTy).Contents (Elt F)),
    unary main_v8648 main_v8652 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8651 main_v8653 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8652 main_v8653 main_v8654 (mulf : (⟨S4x256x16, .f32⟩ : BufTy).Contents (Elt F) → (⟨S4x256x16, .f32⟩ : BufTy).Contents (Elt F) → (⟨S4x256x16, .f32⟩ : BufTy).Contents (Elt F)),
    binary main_v8645 main_v8654 main_v8655 (addf : (⟨S4x256x16, .f32⟩ : BufTy).Contents (Elt F) → (⟨S4x256x16, .f32⟩ : BufTy).Contents (Elt F) → (⟨S4x256x16, .f32⟩ : BufTy).Contents (Elt F)),
    unary main_arg3 main_v8656 ((extractStridedSlice S4x1x16 ![0, 432, 0] · slices_S4x512x16_S4x1x16_0_432_0) : (⟨S4x512x16, .f32⟩ : BufTy).Contents (Elt F) → (⟨S4x1x16, .f32⟩ : BufTy).Contents (Elt F)),
    reshape main_v8656 main_v8657 rfl shapeCasts_S4x1x16_S4x16,
    unary main_v8657 main_v8658 (broadcastInDim S4x1x16 ![0, 2] bcast_S4x16_S4x1x16_0_2 : (⟨S4x16, .f32⟩ : BufTy).Contents (Elt F) → (⟨S4x1x16, .f32⟩ : BufTy).Contents (Elt F)),
    unary main_v8658 main_v8659 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8655 main_v8659 main_v8660 (mulf : (⟨S4x256x16, .f32⟩ : BufTy).Contents (Elt F) → (⟨S4x256x16, .f32⟩ : BufTy).Contents (Elt F) → (⟨S4x256x16, .f32⟩ : BufTy).Contents (Elt F)),
    nullary main_cst_864 (constant S_ .f32 0x00000000#32),
    binary main_v8660 main_cst_864 main_v8661 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_865 (constantI S_ 32 432#32),
    unary main_c_865 main_v8662 (broadcastInDim S1 ![] bcast_S_S1 : (⟨S_, .i32⟩ : BufTy).Contents (Elt F) → (⟨S1, .i32⟩ : BufTy).Contents (Elt F)),
    ternary main_v8643 main_v8662 main_v8661 main_v8663 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps432_ok : (stepOps432 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step432_val (V : Valuation τ sig (Elt Ideal)) :
    after (stepOps432 (F := Ideal)) V (no_index (Proc.devRef .tc main_v8655)) = stepH 432 (by decide) (V (Proc.devRef .tc main_arg0)) (V (Proc.devRef .tc main_v3)) (V (Proc.devRef .tc main_arg2)) (V (Proc.devRef .tc main_v8635))
    ∧ after (stepOps432 (F := Ideal)) V (no_index (Proc.devRef .tc main_v8663)) = stepY 432 (by decide) (V (Proc.devRef .tc main_arg3)) (stepH 432 (by decide) (V (Proc.devRef .tc main_arg0)) (V (Proc.devRef .tc main_v3)) (V (Proc.devRef .tc main_arg2)) (V (Proc.devRef .tc main_v8635))) (V (Proc.devRef .tc main_v8643)) := by
  simp only [stepOps432]
  after_results_simp
  first | exact ⟨rfl, rfl⟩ | fail "value"
/-- Step 433 of the loop: operations 9533 … 9554 of the program. -/
abbrev stepOps433 : List (HloOp τ sig (Elt F)) :=
  [ unary main_v3 main_v8664 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8655 main_v8664 main_v8665 (mulf : (⟨S4x256x16, .f32⟩ : BufTy).Contents (Elt F) → (⟨S4x256x16, .f32⟩ : BufTy).Contents (Elt F) → (⟨S4x256x16, .f32⟩ : BufTy).Contents (Elt F)),
    unary main_arg0 main_v8666 ((extractStridedSlice S4x1x256 ![0, 433, 0] · slices_S4x512x256_S4x1x256_0_433_0) : (⟨S4x512x256, .f32⟩ : BufTy).Contents (Elt F) → (⟨S4x1x256, .f32⟩ : BufTy).Contents (Elt F)),
    reshape main_v8666 main_v8667 rfl shapeCasts_S4x1x256_S4x256,
    unary main_v8667 main_v8668 (broadcastInDim S4x256x1 ![0, 1] bcast_S4x256_S4x256x1_0_1 : (⟨S4x256, .f32⟩ : BufTy).Contents (Elt F) → (⟨S4x256x1, .f32⟩ : BufTy).Contents (Elt F)),
    unary main_arg2 main_v8669 ((extractStridedSlice S4x1x16 ![0, 433, 0] · slices_S4x512x16_S4x1x16_0_433_0) : (⟨S4x512x16, .f32⟩ : BufTy).Contents (Elt F) → (⟨S4x1x16, .f32⟩ : BufTy).Contents (Elt F)),
    reshape main_v8669 main_v8670 rfl shapeCasts_S4x1x16_S4x16,
    unary main_v8670 main_v8671 (broadcastInDim S4x1x16 ![0, 2] bcast_S4x16_S4x1x16_0_2 : (⟨S4x16, .f32⟩ : BufTy).Contents (Elt F) → (⟨S4x1x16, .f32⟩ : BufTy).Contents (Elt F)),
    unary main_v8668 main_v8672 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8671 main_v8673 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8672 main_v8673 main_v8674 (mulf : (⟨S4x256x16, .f32⟩ : BufTy).Contents (Elt F) → (⟨S4x256x16, .f32⟩ : BufTy).Contents (Elt F) → (⟨S4x256x16, .f32⟩ : BufTy).Contents (Elt F)),
    binary main_v8665 main_v8674 main_v8675 (addf : (⟨S4x256x16, .f32⟩ : BufTy).Contents (Elt F) → (⟨S4x256x16, .f32⟩ : BufTy).Contents (Elt F) → (⟨S4x256x16, .f32⟩ : BufTy).Contents (Elt F)),
    unary main_arg3 main_v8676 ((extractStridedSlice S4x1x16 ![0, 433, 0] · slices_S4x512x16_S4x1x16_0_433_0) : (⟨S4x512x16, .f32⟩ : BufTy).Contents (Elt F) → (⟨S4x1x16, .f32⟩ : BufTy).Contents (Elt F)),
    reshape main_v8676 main_v8677 rfl shapeCasts_S4x1x16_S4x16,
    unary main_v8677 main_v8678 (broadcastInDim S4x1x16 ![0, 2] bcast_S4x16_S4x1x16_0_2 : (⟨S4x16, .f32⟩ : BufTy).Contents (Elt F) → (⟨S4x1x16, .f32⟩ : BufTy).Contents (Elt F)),
    unary main_v8678 main_v8679 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8675 main_v8679 main_v8680 (mulf : (⟨S4x256x16, .f32⟩ : BufTy).Contents (Elt F) → (⟨S4x256x16, .f32⟩ : BufTy).Contents (Elt F) → (⟨S4x256x16, .f32⟩ : BufTy).Contents (Elt F)),
    nullary main_cst_866 (constant S_ .f32 0x00000000#32),
    binary main_v8680 main_cst_866 main_v8681 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_867 (constantI S_ 32 433#32),
    unary main_c_867 main_v8682 (broadcastInDim S1 ![] bcast_S_S1 : (⟨S_, .i32⟩ : BufTy).Contents (Elt F) → (⟨S1, .i32⟩ : BufTy).Contents (Elt F)),
    ternary main_v8663 main_v8682 main_v8681 main_v8683 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps433_ok : (stepOps433 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step433_val (V : Valuation τ sig (Elt Ideal)) :
    after (stepOps433 (F := Ideal)) V (no_index (Proc.devRef .tc main_v8675)) = stepH 433 (by decide) (V (Proc.devRef .tc main_arg0)) (V (Proc.devRef .tc main_v3)) (V (Proc.devRef .tc main_arg2)) (V (Proc.devRef .tc main_v8655))
    ∧ after (stepOps433 (F := Ideal)) V (no_index (Proc.devRef .tc main_v8683)) = stepY 433 (by decide) (V (Proc.devRef .tc main_arg3)) (stepH 433 (by decide) (V (Proc.devRef .tc main_arg0)) (V (Proc.devRef .tc main_v3)) (V (Proc.devRef .tc main_arg2)) (V (Proc.devRef .tc main_v8655))) (V (Proc.devRef .tc main_v8663)) := by
  simp only [stepOps433]
  after_results_simp
  first | exact ⟨rfl, rfl⟩ | fail "value"
/-- Step 434 of the loop: operations 9555 … 9576 of the program. -/
abbrev stepOps434 : List (HloOp τ sig (Elt F)) :=
  [ unary main_v3 main_v8684 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8675 main_v8684 main_v8685 (mulf : (⟨S4x256x16, .f32⟩ : BufTy).Contents (Elt F) → (⟨S4x256x16, .f32⟩ : BufTy).Contents (Elt F) → (⟨S4x256x16, .f32⟩ : BufTy).Contents (Elt F)),
    unary main_arg0 main_v8686 ((extractStridedSlice S4x1x256 ![0, 434, 0] · slices_S4x512x256_S4x1x256_0_434_0) : (⟨S4x512x256, .f32⟩ : BufTy).Contents (Elt F) → (⟨S4x1x256, .f32⟩ : BufTy).Contents (Elt F)),
    reshape main_v8686 main_v8687 rfl shapeCasts_S4x1x256_S4x256,
    unary main_v8687 main_v8688 (broadcastInDim S4x256x1 ![0, 1] bcast_S4x256_S4x256x1_0_1 : (⟨S4x256, .f32⟩ : BufTy).Contents (Elt F) → (⟨S4x256x1, .f32⟩ : BufTy).Contents (Elt F)),
    unary main_arg2 main_v8689 ((extractStridedSlice S4x1x16 ![0, 434, 0] · slices_S4x512x16_S4x1x16_0_434_0) : (⟨S4x512x16, .f32⟩ : BufTy).Contents (Elt F) → (⟨S4x1x16, .f32⟩ : BufTy).Contents (Elt F)),
    reshape main_v8689 main_v8690 rfl shapeCasts_S4x1x16_S4x16,
    unary main_v8690 main_v8691 (broadcastInDim S4x1x16 ![0, 2] bcast_S4x16_S4x1x16_0_2 : (⟨S4x16, .f32⟩ : BufTy).Contents (Elt F) → (⟨S4x1x16, .f32⟩ : BufTy).Contents (Elt F)),
    unary main_v8688 main_v8692 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8691 main_v8693 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8692 main_v8693 main_v8694 (mulf : (⟨S4x256x16, .f32⟩ : BufTy).Contents (Elt F) → (⟨S4x256x16, .f32⟩ : BufTy).Contents (Elt F) → (⟨S4x256x16, .f32⟩ : BufTy).Contents (Elt F)),
    binary main_v8685 main_v8694 main_v8695 (addf : (⟨S4x256x16, .f32⟩ : BufTy).Contents (Elt F) → (⟨S4x256x16, .f32⟩ : BufTy).Contents (Elt F) → (⟨S4x256x16, .f32⟩ : BufTy).Contents (Elt F)),
    unary main_arg3 main_v8696 ((extractStridedSlice S4x1x16 ![0, 434, 0] · slices_S4x512x16_S4x1x16_0_434_0) : (⟨S4x512x16, .f32⟩ : BufTy).Contents (Elt F) → (⟨S4x1x16, .f32⟩ : BufTy).Contents (Elt F)),
    reshape main_v8696 main_v8697 rfl shapeCasts_S4x1x16_S4x16,
    unary main_v8697 main_v8698 (broadcastInDim S4x1x16 ![0, 2] bcast_S4x16_S4x1x16_0_2 : (⟨S4x16, .f32⟩ : BufTy).Contents (Elt F) → (⟨S4x1x16, .f32⟩ : BufTy).Contents (Elt F)),
    unary main_v8698 main_v8699 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8695 main_v8699 main_v8700 (mulf : (⟨S4x256x16, .f32⟩ : BufTy).Contents (Elt F) → (⟨S4x256x16, .f32⟩ : BufTy).Contents (Elt F) → (⟨S4x256x16, .f32⟩ : BufTy).Contents (Elt F)),
    nullary main_cst_868 (constant S_ .f32 0x00000000#32),
    binary main_v8700 main_cst_868 main_v8701 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_869 (constantI S_ 32 434#32),
    unary main_c_869 main_v8702 (broadcastInDim S1 ![] bcast_S_S1 : (⟨S_, .i32⟩ : BufTy).Contents (Elt F) → (⟨S1, .i32⟩ : BufTy).Contents (Elt F)),
    ternary main_v8683 main_v8702 main_v8701 main_v8703 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps434_ok : (stepOps434 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step434_val (V : Valuation τ sig (Elt Ideal)) :
    after (stepOps434 (F := Ideal)) V (no_index (Proc.devRef .tc main_v8695)) = stepH 434 (by decide) (V (Proc.devRef .tc main_arg0)) (V (Proc.devRef .tc main_v3)) (V (Proc.devRef .tc main_arg2)) (V (Proc.devRef .tc main_v8675))
    ∧ after (stepOps434 (F := Ideal)) V (no_index (Proc.devRef .tc main_v8703)) = stepY 434 (by decide) (V (Proc.devRef .tc main_arg3)) (stepH 434 (by decide) (V (Proc.devRef .tc main_arg0)) (V (Proc.devRef .tc main_v3)) (V (Proc.devRef .tc main_arg2)) (V (Proc.devRef .tc main_v8675))) (V (Proc.devRef .tc main_v8683)) := by
  simp only [stepOps434]
  after_results_simp
  first | exact ⟨rfl, rfl⟩ | fail "value"
/-- Step 435 of the loop: operations 9577 … 9598 of the program. -/
abbrev stepOps435 : List (HloOp τ sig (Elt F)) :=
  [ unary main_v3 main_v8704 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8695 main_v8704 main_v8705 (mulf : (⟨S4x256x16, .f32⟩ : BufTy).Contents (Elt F) → (⟨S4x256x16, .f32⟩ : BufTy).Contents (Elt F) → (⟨S4x256x16, .f32⟩ : BufTy).Contents (Elt F)),
    unary main_arg0 main_v8706 ((extractStridedSlice S4x1x256 ![0, 435, 0] · slices_S4x512x256_S4x1x256_0_435_0) : (⟨S4x512x256, .f32⟩ : BufTy).Contents (Elt F) → (⟨S4x1x256, .f32⟩ : BufTy).Contents (Elt F)),
    reshape main_v8706 main_v8707 rfl shapeCasts_S4x1x256_S4x256,
    unary main_v8707 main_v8708 (broadcastInDim S4x256x1 ![0, 1] bcast_S4x256_S4x256x1_0_1 : (⟨S4x256, .f32⟩ : BufTy).Contents (Elt F) → (⟨S4x256x1, .f32⟩ : BufTy).Contents (Elt F)),
    unary main_arg2 main_v8709 ((extractStridedSlice S4x1x16 ![0, 435, 0] · slices_S4x512x16_S4x1x16_0_435_0) : (⟨S4x512x16, .f32⟩ : BufTy).Contents (Elt F) → (⟨S4x1x16, .f32⟩ : BufTy).Contents (Elt F)),
    reshape main_v8709 main_v8710 rfl shapeCasts_S4x1x16_S4x16,
    unary main_v8710 main_v8711 (broadcastInDim S4x1x16 ![0, 2] bcast_S4x16_S4x1x16_0_2 : (⟨S4x16, .f32⟩ : BufTy).Contents (Elt F) → (⟨S4x1x16, .f32⟩ : BufTy).Contents (Elt F)),
    unary main_v8708 main_v8712 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8711 main_v8713 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8712 main_v8713 main_v8714 (mulf : (⟨S4x256x16, .f32⟩ : BufTy).Contents (Elt F) → (⟨S4x256x16, .f32⟩ : BufTy).Contents (Elt F) → (⟨S4x256x16, .f32⟩ : BufTy).Contents (Elt F)),
    binary main_v8705 main_v8714 main_v8715 (addf : (⟨S4x256x16, .f32⟩ : BufTy).Contents (Elt F) → (⟨S4x256x16, .f32⟩ : BufTy).Contents (Elt F) → (⟨S4x256x16, .f32⟩ : BufTy).Contents (Elt F)),
    unary main_arg3 main_v8716 ((extractStridedSlice S4x1x16 ![0, 435, 0] · slices_S4x512x16_S4x1x16_0_435_0) : (⟨S4x512x16, .f32⟩ : BufTy).Contents (Elt F) → (⟨S4x1x16, .f32⟩ : BufTy).Contents (Elt F)),
    reshape main_v8716 main_v8717 rfl shapeCasts_S4x1x16_S4x16,
    unary main_v8717 main_v8718 (broadcastInDim S4x1x16 ![0, 2] bcast_S4x16_S4x1x16_0_2 : (⟨S4x16, .f32⟩ : BufTy).Contents (Elt F) → (⟨S4x1x16, .f32⟩ : BufTy).Contents (Elt F)),
    unary main_v8718 main_v8719 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8715 main_v8719 main_v8720 (mulf : (⟨S4x256x16, .f32⟩ : BufTy).Contents (Elt F) → (⟨S4x256x16, .f32⟩ : BufTy).Contents (Elt F) → (⟨S4x256x16, .f32⟩ : BufTy).Contents (Elt F)),
    nullary main_cst_870 (constant S_ .f32 0x00000000#32),
    binary main_v8720 main_cst_870 main_v8721 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_871 (constantI S_ 32 435#32),
    unary main_c_871 main_v8722 (broadcastInDim S1 ![] bcast_S_S1 : (⟨S_, .i32⟩ : BufTy).Contents (Elt F) → (⟨S1, .i32⟩ : BufTy).Contents (Elt F)),
    ternary main_v8703 main_v8722 main_v8721 main_v8723 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps435_ok : (stepOps435 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step435_val (V : Valuation τ sig (Elt Ideal)) :
    after (stepOps435 (F := Ideal)) V (no_index (Proc.devRef .tc main_v8715)) = stepH 435 (by decide) (V (Proc.devRef .tc main_arg0)) (V (Proc.devRef .tc main_v3)) (V (Proc.devRef .tc main_arg2)) (V (Proc.devRef .tc main_v8695))
    ∧ after (stepOps435 (F := Ideal)) V (no_index (Proc.devRef .tc main_v8723)) = stepY 435 (by decide) (V (Proc.devRef .tc main_arg3)) (stepH 435 (by decide) (V (Proc.devRef .tc main_arg0)) (V (Proc.devRef .tc main_v3)) (V (Proc.devRef .tc main_arg2)) (V (Proc.devRef .tc main_v8695))) (V (Proc.devRef .tc main_v8703)) := by
  simp only [stepOps435]
  after_results_simp
  first | exact ⟨rfl, rfl⟩ | fail "value"
/-- Step 436 of the loop: operations 9599 … 9620 of the program. -/
abbrev stepOps436 : List (HloOp τ sig (Elt F)) :=
  [ unary main_v3 main_v8724 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8715 main_v8724 main_v8725 (mulf : (⟨S4x256x16, .f32⟩ : BufTy).Contents (Elt F) → (⟨S4x256x16, .f32⟩ : BufTy).Contents (Elt F) → (⟨S4x256x16, .f32⟩ : BufTy).Contents (Elt F)),
    unary main_arg0 main_v8726 ((extractStridedSlice S4x1x256 ![0, 436, 0] · slices_S4x512x256_S4x1x256_0_436_0) : (⟨S4x512x256, .f32⟩ : BufTy).Contents (Elt F) → (⟨S4x1x256, .f32⟩ : BufTy).Contents (Elt F)),
    reshape main_v8726 main_v8727 rfl shapeCasts_S4x1x256_S4x256,
    unary main_v8727 main_v8728 (broadcastInDim S4x256x1 ![0, 1] bcast_S4x256_S4x256x1_0_1 : (⟨S4x256, .f32⟩ : BufTy).Contents (Elt F) → (⟨S4x256x1, .f32⟩ : BufTy).Contents (Elt F)),
    unary main_arg2 main_v8729 ((extractStridedSlice S4x1x16 ![0, 436, 0] · slices_S4x512x16_S4x1x16_0_436_0) : (⟨S4x512x16, .f32⟩ : BufTy).Contents (Elt F) → (⟨S4x1x16, .f32⟩ : BufTy).Contents (Elt F)),
    reshape main_v8729 main_v8730 rfl shapeCasts_S4x1x16_S4x16,
    unary main_v8730 main_v8731 (broadcastInDim S4x1x16 ![0, 2] bcast_S4x16_S4x1x16_0_2 : (⟨S4x16, .f32⟩ : BufTy).Contents (Elt F) → (⟨S4x1x16, .f32⟩ : BufTy).Contents (Elt F)),
    unary main_v8728 main_v8732 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8731 main_v8733 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8732 main_v8733 main_v8734 (mulf : (⟨S4x256x16, .f32⟩ : BufTy).Contents (Elt F) → (⟨S4x256x16, .f32⟩ : BufTy).Contents (Elt F) → (⟨S4x256x16, .f32⟩ : BufTy).Contents (Elt F)),
    binary main_v8725 main_v8734 main_v8735 (addf : (⟨S4x256x16, .f32⟩ : BufTy).Contents (Elt F) → (⟨S4x256x16, .f32⟩ : BufTy).Contents (Elt F) → (⟨S4x256x16, .f32⟩ : BufTy).Contents (Elt F)),
    unary main_arg3 main_v8736 ((extractStridedSlice S4x1x16 ![0, 436, 0] · slices_S4x512x16_S4x1x16_0_436_0) : (⟨S4x512x16, .f32⟩ : BufTy).Contents (Elt F) → (⟨S4x1x16, .f32⟩ : BufTy).Contents (Elt F)),
    reshape main_v8736 main_v8737 rfl shapeCasts_S4x1x16_S4x16,
    unary main_v8737 main_v8738 (broadcastInDim S4x1x16 ![0, 2] bcast_S4x16_S4x1x16_0_2 : (⟨S4x16, .f32⟩ : BufTy).Contents (Elt F) → (⟨S4x1x16, .f32⟩ : BufTy).Contents (Elt F)),
    unary main_v8738 main_v8739 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8735 main_v8739 main_v8740 (mulf : (⟨S4x256x16, .f32⟩ : BufTy).Contents (Elt F) → (⟨S4x256x16, .f32⟩ : BufTy).Contents (Elt F) → (⟨S4x256x16, .f32⟩ : BufTy).Contents (Elt F)),
    nullary main_cst_872 (constant S_ .f32 0x00000000#32),
    binary main_v8740 main_cst_872 main_v8741 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_873 (constantI S_ 32 436#32),
    unary main_c_873 main_v8742 (broadcastInDim S1 ![] bcast_S_S1 : (⟨S_, .i32⟩ : BufTy).Contents (Elt F) → (⟨S1, .i32⟩ : BufTy).Contents (Elt F)),
    ternary main_v8723 main_v8742 main_v8741 main_v8743 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps436_ok : (stepOps436 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step436_val (V : Valuation τ sig (Elt Ideal)) :
    after (stepOps436 (F := Ideal)) V (no_index (Proc.devRef .tc main_v8735)) = stepH 436 (by decide) (V (Proc.devRef .tc main_arg0)) (V (Proc.devRef .tc main_v3)) (V (Proc.devRef .tc main_arg2)) (V (Proc.devRef .tc main_v8715))
    ∧ after (stepOps436 (F := Ideal)) V (no_index (Proc.devRef .tc main_v8743)) = stepY 436 (by decide) (V (Proc.devRef .tc main_arg3)) (stepH 436 (by decide) (V (Proc.devRef .tc main_arg0)) (V (Proc.devRef .tc main_v3)) (V (Proc.devRef .tc main_arg2)) (V (Proc.devRef .tc main_v8715))) (V (Proc.devRef .tc main_v8723)) := by
  simp only [stepOps436]
  after_results_simp
  first | exact ⟨rfl, rfl⟩ | fail "value"
/-- Step 437 of the loop: operations 9621 … 9642 of the program. -/
abbrev stepOps437 : List (HloOp τ sig (Elt F)) :=
  [ unary main_v3 main_v8744 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8735 main_v8744 main_v8745 (mulf : (⟨S4x256x16, .f32⟩ : BufTy).Contents (Elt F) → (⟨S4x256x16, .f32⟩ : BufTy).Contents (Elt F) → (⟨S4x256x16, .f32⟩ : BufTy).Contents (Elt F)),
    unary main_arg0 main_v8746 ((extractStridedSlice S4x1x256 ![0, 437, 0] · slices_S4x512x256_S4x1x256_0_437_0) : (⟨S4x512x256, .f32⟩ : BufTy).Contents (Elt F) → (⟨S4x1x256, .f32⟩ : BufTy).Contents (Elt F)),
    reshape main_v8746 main_v8747 rfl shapeCasts_S4x1x256_S4x256,
    unary main_v8747 main_v8748 (broadcastInDim S4x256x1 ![0, 1] bcast_S4x256_S4x256x1_0_1 : (⟨S4x256, .f32⟩ : BufTy).Contents (Elt F) → (⟨S4x256x1, .f32⟩ : BufTy).Contents (Elt F)),
    unary main_arg2 main_v8749 ((extractStridedSlice S4x1x16 ![0, 437, 0] · slices_S4x512x16_S4x1x16_0_437_0) : (⟨S4x512x16, .f32⟩ : BufTy).Contents (Elt F) → (⟨S4x1x16, .f32⟩ : BufTy).Contents (Elt F)),
    reshape main_v8749 main_v8750 rfl shapeCasts_S4x1x16_S4x16,
    unary main_v8750 main_v8751 (broadcastInDim S4x1x16 ![0, 2] bcast_S4x16_S4x1x16_0_2 : (⟨S4x16, .f32⟩ : BufTy).Contents (Elt F) → (⟨S4x1x16, .f32⟩ : BufTy).Contents (Elt F)),
    unary main_v8748 main_v8752 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8751 main_v8753 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8752 main_v8753 main_v8754 (mulf : (⟨S4x256x16, .f32⟩ : BufTy).Contents (Elt F) → (⟨S4x256x16, .f32⟩ : BufTy).Contents (Elt F) → (⟨S4x256x16, .f32⟩ : BufTy).Contents (Elt F)),
    binary main_v8745 main_v8754 main_v8755 (addf : (⟨S4x256x16, .f32⟩ : BufTy).Contents (Elt F) → (⟨S4x256x16, .f32⟩ : BufTy).Contents (Elt F) → (⟨S4x256x16, .f32⟩ : BufTy).Contents (Elt F)),
    unary main_arg3 main_v8756 ((extractStridedSlice S4x1x16 ![0, 437, 0] · slices_S4x512x16_S4x1x16_0_437_0) : (⟨S4x512x16, .f32⟩ : BufTy).Contents (Elt F) → (⟨S4x1x16, .f32⟩ : BufTy).Contents (Elt F)),
    reshape main_v8756 main_v8757 rfl shapeCasts_S4x1x16_S4x16,
    unary main_v8757 main_v8758 (broadcastInDim S4x1x16 ![0, 2] bcast_S4x16_S4x1x16_0_2 : (⟨S4x16, .f32⟩ : BufTy).Contents (Elt F) → (⟨S4x1x16, .f32⟩ : BufTy).Contents (Elt F)),
    unary main_v8758 main_v8759 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8755 main_v8759 main_v8760 (mulf : (⟨S4x256x16, .f32⟩ : BufTy).Contents (Elt F) → (⟨S4x256x16, .f32⟩ : BufTy).Contents (Elt F) → (⟨S4x256x16, .f32⟩ : BufTy).Contents (Elt F)),
    nullary main_cst_874 (constant S_ .f32 0x00000000#32),
    binary main_v8760 main_cst_874 main_v8761 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_875 (constantI S_ 32 437#32),
    unary main_c_875 main_v8762 (broadcastInDim S1 ![] bcast_S_S1 : (⟨S_, .i32⟩ : BufTy).Contents (Elt F) → (⟨S1, .i32⟩ : BufTy).Contents (Elt F)),
    ternary main_v8743 main_v8762 main_v8761 main_v8763 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps437_ok : (stepOps437 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step437_val (V : Valuation τ sig (Elt Ideal)) :
    after (stepOps437 (F := Ideal)) V (no_index (Proc.devRef .tc main_v8755)) = stepH 437 (by decide) (V (Proc.devRef .tc main_arg0)) (V (Proc.devRef .tc main_v3)) (V (Proc.devRef .tc main_arg2)) (V (Proc.devRef .tc main_v8735))
    ∧ after (stepOps437 (F := Ideal)) V (no_index (Proc.devRef .tc main_v8763)) = stepY 437 (by decide) (V (Proc.devRef .tc main_arg3)) (stepH 437 (by decide) (V (Proc.devRef .tc main_arg0)) (V (Proc.devRef .tc main_v3)) (V (Proc.devRef .tc main_arg2)) (V (Proc.devRef .tc main_v8735))) (V (Proc.devRef .tc main_v8743)) := by
  simp only [stepOps437]
  after_results_simp
  first | exact ⟨rfl, rfl⟩ | fail "value"
/-- Step 438 of the loop: operations 9643 … 9664 of the program. -/
abbrev stepOps438 : List (HloOp τ sig (Elt F)) :=
  [ unary main_v3 main_v8764 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8755 main_v8764 main_v8765 (mulf : (⟨S4x256x16, .f32⟩ : BufTy).Contents (Elt F) → (⟨S4x256x16, .f32⟩ : BufTy).Contents (Elt F) → (⟨S4x256x16, .f32⟩ : BufTy).Contents (Elt F)),
    unary main_arg0 main_v8766 ((extractStridedSlice S4x1x256 ![0, 438, 0] · slices_S4x512x256_S4x1x256_0_438_0) : (⟨S4x512x256, .f32⟩ : BufTy).Contents (Elt F) → (⟨S4x1x256, .f32⟩ : BufTy).Contents (Elt F)),
    reshape main_v8766 main_v8767 rfl shapeCasts_S4x1x256_S4x256,
    unary main_v8767 main_v8768 (broadcastInDim S4x256x1 ![0, 1] bcast_S4x256_S4x256x1_0_1 : (⟨S4x256, .f32⟩ : BufTy).Contents (Elt F) → (⟨S4x256x1, .f32⟩ : BufTy).Contents (Elt F)),
    unary main_arg2 main_v8769 ((extractStridedSlice S4x1x16 ![0, 438, 0] · slices_S4x512x16_S4x1x16_0_438_0) : (⟨S4x512x16, .f32⟩ : BufTy).Contents (Elt F) → (⟨S4x1x16, .f32⟩ : BufTy).Contents (Elt F)),
    reshape main_v8769 main_v8770 rfl shapeCasts_S4x1x16_S4x16,
    unary main_v8770 main_v8771 (broadcastInDim S4x1x16 ![0, 2] bcast_S4x16_S4x1x16_0_2 : (⟨S4x16, .f32⟩ : BufTy).Contents (Elt F) → (⟨S4x1x16, .f32⟩ : BufTy).Contents (Elt F)),
    unary main_v8768 main_v8772 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8771 main_v8773 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8772 main_v8773 main_v8774 (mulf : (⟨S4x256x16, .f32⟩ : BufTy).Contents (Elt F) → (⟨S4x256x16, .f32⟩ : BufTy).Contents (Elt F) → (⟨S4x256x16, .f32⟩ : BufTy).Contents (Elt F)),
    binary main_v8765 main_v8774 main_v8775 (addf : (⟨S4x256x16, .f32⟩ : BufTy).Contents (Elt F) → (⟨S4x256x16, .f32⟩ : BufTy).Contents (Elt F) → (⟨S4x256x16, .f32⟩ : BufTy).Contents (Elt F)),
    unary main_arg3 main_v8776 ((extractStridedSlice S4x1x16 ![0, 438, 0] · slices_S4x512x16_S4x1x16_0_438_0) : (⟨S4x512x16, .f32⟩ : BufTy).Contents (Elt F) → (⟨S4x1x16, .f32⟩ : BufTy).Contents (Elt F)),
    reshape main_v8776 main_v8777 rfl shapeCasts_S4x1x16_S4x16,
    unary main_v8777 main_v8778 (broadcastInDim S4x1x16 ![0, 2] bcast_S4x16_S4x1x16_0_2 : (⟨S4x16, .f32⟩ : BufTy).Contents (Elt F) → (⟨S4x1x16, .f32⟩ : BufTy).Contents (Elt F)),
    unary main_v8778 main_v8779 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8775 main_v8779 main_v8780 (mulf : (⟨S4x256x16, .f32⟩ : BufTy).Contents (Elt F) → (⟨S4x256x16, .f32⟩ : BufTy).Contents (Elt F) → (⟨S4x256x16, .f32⟩ : BufTy).Contents (Elt F)),
    nullary main_cst_876 (constant S_ .f32 0x00000000#32),
    binary main_v8780 main_cst_876 main_v8781 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_877 (constantI S_ 32 438#32),
    unary main_c_877 main_v8782 (broadcastInDim S1 ![] bcast_S_S1 : (⟨S_, .i32⟩ : BufTy).Contents (Elt F) → (⟨S1, .i32⟩ : BufTy).Contents (Elt F)),
    ternary main_v8763 main_v8782 main_v8781 main_v8783 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps438_ok : (stepOps438 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step438_val (V : Valuation τ sig (Elt Ideal)) :
    after (stepOps438 (F := Ideal)) V (no_index (Proc.devRef .tc main_v8775)) = stepH 438 (by decide) (V (Proc.devRef .tc main_arg0)) (V (Proc.devRef .tc main_v3)) (V (Proc.devRef .tc main_arg2)) (V (Proc.devRef .tc main_v8755))
    ∧ after (stepOps438 (F := Ideal)) V (no_index (Proc.devRef .tc main_v8783)) = stepY 438 (by decide) (V (Proc.devRef .tc main_arg3)) (stepH 438 (by decide) (V (Proc.devRef .tc main_arg0)) (V (Proc.devRef .tc main_v3)) (V (Proc.devRef .tc main_arg2)) (V (Proc.devRef .tc main_v8755))) (V (Proc.devRef .tc main_v8763)) := by
  simp only [stepOps438]
  after_results_simp
  first | exact ⟨rfl, rfl⟩ | fail "value"
/-- Step 439 of the loop: operations 9665 … 9686 of the program. -/
abbrev stepOps439 : List (HloOp τ sig (Elt F)) :=
  [ unary main_v3 main_v8784 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8775 main_v8784 main_v8785 (mulf : (⟨S4x256x16, .f32⟩ : BufTy).Contents (Elt F) → (⟨S4x256x16, .f32⟩ : BufTy).Contents (Elt F) → (⟨S4x256x16, .f32⟩ : BufTy).Contents (Elt F)),
    unary main_arg0 main_v8786 ((extractStridedSlice S4x1x256 ![0, 439, 0] · slices_S4x512x256_S4x1x256_0_439_0) : (⟨S4x512x256, .f32⟩ : BufTy).Contents (Elt F) → (⟨S4x1x256, .f32⟩ : BufTy).Contents (Elt F)),
    reshape main_v8786 main_v8787 rfl shapeCasts_S4x1x256_S4x256,
    unary main_v8787 main_v8788 (broadcastInDim S4x256x1 ![0, 1] bcast_S4x256_S4x256x1_0_1 : (⟨S4x256, .f32⟩ : BufTy).Contents (Elt F) → (⟨S4x256x1, .f32⟩ : BufTy).Contents (Elt F)),
    unary main_arg2 main_v8789 ((extractStridedSlice S4x1x16 ![0, 439, 0] · slices_S4x512x16_S4x1x16_0_439_0) : (⟨S4x512x16, .f32⟩ : BufTy).Contents (Elt F) → (⟨S4x1x16, .f32⟩ : BufTy).Contents (Elt F)),
    reshape main_v8789 main_v8790 rfl shapeCasts_S4x1x16_S4x16,
    unary main_v8790 main_v8791 (broadcastInDim S4x1x16 ![0, 2] bcast_S4x16_S4x1x16_0_2 : (⟨S4x16, .f32⟩ : BufTy).Contents (Elt F) → (⟨S4x1x16, .f32⟩ : BufTy).Contents (Elt F)),
    unary main_v8788 main_v8792 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8791 main_v8793 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8792 main_v8793 main_v8794 (mulf : (⟨S4x256x16, .f32⟩ : BufTy).Contents (Elt F) → (⟨S4x256x16, .f32⟩ : BufTy).Contents (Elt F) → (⟨S4x256x16, .f32⟩ : BufTy).Contents (Elt F)),
    binary main_v8785 main_v8794 main_v8795 (addf : (⟨S4x256x16, .f32⟩ : BufTy).Contents (Elt F) → (⟨S4x256x16, .f32⟩ : BufTy).Contents (Elt F) → (⟨S4x256x16, .f32⟩ : BufTy).Contents (Elt F)),
    unary main_arg3 main_v8796 ((extractStridedSlice S4x1x16 ![0, 439, 0] · slices_S4x512x16_S4x1x16_0_439_0) : (⟨S4x512x16, .f32⟩ : BufTy).Contents (Elt F) → (⟨S4x1x16, .f32⟩ : BufTy).Contents (Elt F)),
    reshape main_v8796 main_v8797 rfl shapeCasts_S4x1x16_S4x16,
    unary main_v8797 main_v8798 (broadcastInDim S4x1x16 ![0, 2] bcast_S4x16_S4x1x16_0_2 : (⟨S4x16, .f32⟩ : BufTy).Contents (Elt F) → (⟨S4x1x16, .f32⟩ : BufTy).Contents (Elt F)),
    unary main_v8798 main_v8799 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8795 main_v8799 main_v8800 (mulf : (⟨S4x256x16, .f32⟩ : BufTy).Contents (Elt F) → (⟨S4x256x16, .f32⟩ : BufTy).Contents (Elt F) → (⟨S4x256x16, .f32⟩ : BufTy).Contents (Elt F)),
    nullary main_cst_878 (constant S_ .f32 0x00000000#32),
    binary main_v8800 main_cst_878 main_v8801 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_879 (constantI S_ 32 439#32),
    unary main_c_879 main_v8802 (broadcastInDim S1 ![] bcast_S_S1 : (⟨S_, .i32⟩ : BufTy).Contents (Elt F) → (⟨S1, .i32⟩ : BufTy).Contents (Elt F)),
    ternary main_v8783 main_v8802 main_v8801 main_v8803 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps439_ok : (stepOps439 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step439_val (V : Valuation τ sig (Elt Ideal)) :
    after (stepOps439 (F := Ideal)) V (no_index (Proc.devRef .tc main_v8795)) = stepH 439 (by decide) (V (Proc.devRef .tc main_arg0)) (V (Proc.devRef .tc main_v3)) (V (Proc.devRef .tc main_arg2)) (V (Proc.devRef .tc main_v8775))
    ∧ after (stepOps439 (F := Ideal)) V (no_index (Proc.devRef .tc main_v8803)) = stepY 439 (by decide) (V (Proc.devRef .tc main_arg3)) (stepH 439 (by decide) (V (Proc.devRef .tc main_arg0)) (V (Proc.devRef .tc main_v3)) (V (Proc.devRef .tc main_arg2)) (V (Proc.devRef .tc main_v8775))) (V (Proc.devRef .tc main_v8783)) := by
  simp only [stepOps439]
  after_results_simp
  first | exact ⟨rfl, rfl⟩ | fail "value"
/-- Step 440 of the loop: operations 9687 … 9708 of the program. -/
abbrev stepOps440 : List (HloOp τ sig (Elt F)) :=
  [ unary main_v3 main_v8804 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8795 main_v8804 main_v8805 (mulf : (⟨S4x256x16, .f32⟩ : BufTy).Contents (Elt F) → (⟨S4x256x16, .f32⟩ : BufTy).Contents (Elt F) → (⟨S4x256x16, .f32⟩ : BufTy).Contents (Elt F)),
    unary main_arg0 main_v8806 ((extractStridedSlice S4x1x256 ![0, 440, 0] · slices_S4x512x256_S4x1x256_0_440_0) : (⟨S4x512x256, .f32⟩ : BufTy).Contents (Elt F) → (⟨S4x1x256, .f32⟩ : BufTy).Contents (Elt F)),
    reshape main_v8806 main_v8807 rfl shapeCasts_S4x1x256_S4x256,
    unary main_v8807 main_v8808 (broadcastInDim S4x256x1 ![0, 1] bcast_S4x256_S4x256x1_0_1 : (⟨S4x256, .f32⟩ : BufTy).Contents (Elt F) → (⟨S4x256x1, .f32⟩ : BufTy).Contents (Elt F)),
    unary main_arg2 main_v8809 ((extractStridedSlice S4x1x16 ![0, 440, 0] · slices_S4x512x16_S4x1x16_0_440_0) : (⟨S4x512x16, .f32⟩ : BufTy).Contents (Elt F) → (⟨S4x1x16, .f32⟩ : BufTy).Contents (Elt F)),
    reshape main_v8809 main_v8810 rfl shapeCasts_S4x1x16_S4x16,
    unary main_v8810 main_v8811 (broadcastInDim S4x1x16 ![0, 2] bcast_S4x16_S4x1x16_0_2 : (⟨S4x16, .f32⟩ : BufTy).Contents (Elt F) → (⟨S4x1x16, .f32⟩ : BufTy).Contents (Elt F)),
    unary main_v8808 main_v8812 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8811 main_v8813 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8812 main_v8813 main_v8814 (mulf : (⟨S4x256x16, .f32⟩ : BufTy).Contents (Elt F) → (⟨S4x256x16, .f32⟩ : BufTy).Contents (Elt F) → (⟨S4x256x16, .f32⟩ : BufTy).Contents (Elt F)),
    binary main_v8805 main_v8814 main_v8815 (addf : (⟨S4x256x16, .f32⟩ : BufTy).Contents (Elt F) → (⟨S4x256x16, .f32⟩ : BufTy).Contents (Elt F) → (⟨S4x256x16, .f32⟩ : BufTy).Contents (Elt F)),
    unary main_arg3 main_v8816 ((extractStridedSlice S4x1x16 ![0, 440, 0] · slices_S4x512x16_S4x1x16_0_440_0) : (⟨S4x512x16, .f32⟩ : BufTy).Contents (Elt F) → (⟨S4x1x16, .f32⟩ : BufTy).Contents (Elt F)),
    reshape main_v8816 main_v8817 rfl shapeCasts_S4x1x16_S4x16,
    unary main_v8817 main_v8818 (broadcastInDim S4x1x16 ![0, 2] bcast_S4x16_S4x1x16_0_2 : (⟨S4x16, .f32⟩ : BufTy).Contents (Elt F) → (⟨S4x1x16, .f32⟩ : BufTy).Contents (Elt F)),
    unary main_v8818 main_v8819 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8815 main_v8819 main_v8820 (mulf : (⟨S4x256x16, .f32⟩ : BufTy).Contents (Elt F) → (⟨S4x256x16, .f32⟩ : BufTy).Contents (Elt F) → (⟨S4x256x16, .f32⟩ : BufTy).Contents (Elt F)),
    nullary main_cst_880 (constant S_ .f32 0x00000000#32),
    binary main_v8820 main_cst_880 main_v8821 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_881 (constantI S_ 32 440#32),
    unary main_c_881 main_v8822 (broadcastInDim S1 ![] bcast_S_S1 : (⟨S_, .i32⟩ : BufTy).Contents (Elt F) → (⟨S1, .i32⟩ : BufTy).Contents (Elt F)),
    ternary main_v8803 main_v8822 main_v8821 main_v8823 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps440_ok : (stepOps440 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step440_val (V : Valuation τ sig (Elt Ideal)) :
    after (stepOps440 (F := Ideal)) V (no_index (Proc.devRef .tc main_v8815)) = stepH 440 (by decide) (V (Proc.devRef .tc main_arg0)) (V (Proc.devRef .tc main_v3)) (V (Proc.devRef .tc main_arg2)) (V (Proc.devRef .tc main_v8795))
    ∧ after (stepOps440 (F := Ideal)) V (no_index (Proc.devRef .tc main_v8823)) = stepY 440 (by decide) (V (Proc.devRef .tc main_arg3)) (stepH 440 (by decide) (V (Proc.devRef .tc main_arg0)) (V (Proc.devRef .tc main_v3)) (V (Proc.devRef .tc main_arg2)) (V (Proc.devRef .tc main_v8795))) (V (Proc.devRef .tc main_v8803)) := by
  simp only [stepOps440]
  after_results_simp
  first | exact ⟨rfl, rfl⟩ | fail "value"
/-- Step 441 of the loop: operations 9709 … 9730 of the program. -/
abbrev stepOps441 : List (HloOp τ sig (Elt F)) :=
  [ unary main_v3 main_v8824 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8815 main_v8824 main_v8825 (mulf : (⟨S4x256x16, .f32⟩ : BufTy).Contents (Elt F) → (⟨S4x256x16, .f32⟩ : BufTy).Contents (Elt F) → (⟨S4x256x16, .f32⟩ : BufTy).Contents (Elt F)),
    unary main_arg0 main_v8826 ((extractStridedSlice S4x1x256 ![0, 441, 0] · slices_S4x512x256_S4x1x256_0_441_0) : (⟨S4x512x256, .f32⟩ : BufTy).Contents (Elt F) → (⟨S4x1x256, .f32⟩ : BufTy).Contents (Elt F)),
    reshape main_v8826 main_v8827 rfl shapeCasts_S4x1x256_S4x256,
    unary main_v8827 main_v8828 (broadcastInDim S4x256x1 ![0, 1] bcast_S4x256_S4x256x1_0_1 : (⟨S4x256, .f32⟩ : BufTy).Contents (Elt F) → (⟨S4x256x1, .f32⟩ : BufTy).Contents (Elt F)),
    unary main_arg2 main_v8829 ((extractStridedSlice S4x1x16 ![0, 441, 0] · slices_S4x512x16_S4x1x16_0_441_0) : (⟨S4x512x16, .f32⟩ : BufTy).Contents (Elt F) → (⟨S4x1x16, .f32⟩ : BufTy).Contents (Elt F)),
    reshape main_v8829 main_v8830 rfl shapeCasts_S4x1x16_S4x16,
    unary main_v8830 main_v8831 (broadcastInDim S4x1x16 ![0, 2] bcast_S4x16_S4x1x16_0_2 : (⟨S4x16, .f32⟩ : BufTy).Contents (Elt F) → (⟨S4x1x16, .f32⟩ : BufTy).Contents (Elt F)),
    unary main_v8828 main_v8832 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8831 main_v8833 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8832 main_v8833 main_v8834 (mulf : (⟨S4x256x16, .f32⟩ : BufTy).Contents (Elt F) → (⟨S4x256x16, .f32⟩ : BufTy).Contents (Elt F) → (⟨S4x256x16, .f32⟩ : BufTy).Contents (Elt F)),
    binary main_v8825 main_v8834 main_v8835 (addf : (⟨S4x256x16, .f32⟩ : BufTy).Contents (Elt F) → (⟨S4x256x16, .f32⟩ : BufTy).Contents (Elt F) → (⟨S4x256x16, .f32⟩ : BufTy).Contents (Elt F)),
    unary main_arg3 main_v8836 ((extractStridedSlice S4x1x16 ![0, 441, 0] · slices_S4x512x16_S4x1x16_0_441_0) : (⟨S4x512x16, .f32⟩ : BufTy).Contents (Elt F) → (⟨S4x1x16, .f32⟩ : BufTy).Contents (Elt F)),
    reshape main_v8836 main_v8837 rfl shapeCasts_S4x1x16_S4x16,
    unary main_v8837 main_v8838 (broadcastInDim S4x1x16 ![0, 2] bcast_S4x16_S4x1x16_0_2 : (⟨S4x16, .f32⟩ : BufTy).Contents (Elt F) → (⟨S4x1x16, .f32⟩ : BufTy).Contents (Elt F)),
    unary main_v8838 main_v8839 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8835 main_v8839 main_v8840 (mulf : (⟨S4x256x16, .f32⟩ : BufTy).Contents (Elt F) → (⟨S4x256x16, .f32⟩ : BufTy).Contents (Elt F) → (⟨S4x256x16, .f32⟩ : BufTy).Contents (Elt F)),
    nullary main_cst_882 (constant S_ .f32 0x00000000#32),
    binary main_v8840 main_cst_882 main_v8841 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_883 (constantI S_ 32 441#32),
    unary main_c_883 main_v8842 (broadcastInDim S1 ![] bcast_S_S1 : (⟨S_, .i32⟩ : BufTy).Contents (Elt F) → (⟨S1, .i32⟩ : BufTy).Contents (Elt F)),
    ternary main_v8823 main_v8842 main_v8841 main_v8843 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps441_ok : (stepOps441 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step441_val (V : Valuation τ sig (Elt Ideal)) :
    after (stepOps441 (F := Ideal)) V (no_index (Proc.devRef .tc main_v8835)) = stepH 441 (by decide) (V (Proc.devRef .tc main_arg0)) (V (Proc.devRef .tc main_v3)) (V (Proc.devRef .tc main_arg2)) (V (Proc.devRef .tc main_v8815))
    ∧ after (stepOps441 (F := Ideal)) V (no_index (Proc.devRef .tc main_v8843)) = stepY 441 (by decide) (V (Proc.devRef .tc main_arg3)) (stepH 441 (by decide) (V (Proc.devRef .tc main_arg0)) (V (Proc.devRef .tc main_v3)) (V (Proc.devRef .tc main_arg2)) (V (Proc.devRef .tc main_v8815))) (V (Proc.devRef .tc main_v8823)) := by
  simp only [stepOps441]
  after_results_simp
  first | exact ⟨rfl, rfl⟩ | fail "value"
/-- Step 442 of the loop: operations 9731 … 9752 of the program. -/
abbrev stepOps442 : List (HloOp τ sig (Elt F)) :=
  [ unary main_v3 main_v8844 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8835 main_v8844 main_v8845 (mulf : (⟨S4x256x16, .f32⟩ : BufTy).Contents (Elt F) → (⟨S4x256x16, .f32⟩ : BufTy).Contents (Elt F) → (⟨S4x256x16, .f32⟩ : BufTy).Contents (Elt F)),
    unary main_arg0 main_v8846 ((extractStridedSlice S4x1x256 ![0, 442, 0] · slices_S4x512x256_S4x1x256_0_442_0) : (⟨S4x512x256, .f32⟩ : BufTy).Contents (Elt F) → (⟨S4x1x256, .f32⟩ : BufTy).Contents (Elt F)),
    reshape main_v8846 main_v8847 rfl shapeCasts_S4x1x256_S4x256,
    unary main_v8847 main_v8848 (broadcastInDim S4x256x1 ![0, 1] bcast_S4x256_S4x256x1_0_1 : (⟨S4x256, .f32⟩ : BufTy).Contents (Elt F) → (⟨S4x256x1, .f32⟩ : BufTy).Contents (Elt F)),
    unary main_arg2 main_v8849 ((extractStridedSlice S4x1x16 ![0, 442, 0] · slices_S4x512x16_S4x1x16_0_442_0) : (⟨S4x512x16, .f32⟩ : BufTy).Contents (Elt F) → (⟨S4x1x16, .f32⟩ : BufTy).Contents (Elt F)),
    reshape main_v8849 main_v8850 rfl shapeCasts_S4x1x16_S4x16,
    unary main_v8850 main_v8851 (broadcastInDim S4x1x16 ![0, 2] bcast_S4x16_S4x1x16_0_2 : (⟨S4x16, .f32⟩ : BufTy).Contents (Elt F) → (⟨S4x1x16, .f32⟩ : BufTy).Contents (Elt F)),
    unary main_v8848 main_v8852 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8851 main_v8853 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8852 main_v8853 main_v8854 (mulf : (⟨S4x256x16, .f32⟩ : BufTy).Contents (Elt F) → (⟨S4x256x16, .f32⟩ : BufTy).Contents (Elt F) → (⟨S4x256x16, .f32⟩ : BufTy).Contents (Elt F)),
    binary main_v8845 main_v8854 main_v8855 (addf : (⟨S4x256x16, .f32⟩ : BufTy).Contents (Elt F) → (⟨S4x256x16, .f32⟩ : BufTy).Contents (Elt F) → (⟨S4x256x16, .f32⟩ : BufTy).Contents (Elt F)),
    unary main_arg3 main_v8856 ((extractStridedSlice S4x1x16 ![0, 442, 0] · slices_S4x512x16_S4x1x16_0_442_0) : (⟨S4x512x16, .f32⟩ : BufTy).Contents (Elt F) → (⟨S4x1x16, .f32⟩ : BufTy).Contents (Elt F)),
    reshape main_v8856 main_v8857 rfl shapeCasts_S4x1x16_S4x16,
    unary main_v8857 main_v8858 (broadcastInDim S4x1x16 ![0, 2] bcast_S4x16_S4x1x16_0_2 : (⟨S4x16, .f32⟩ : BufTy).Contents (Elt F) → (⟨S4x1x16, .f32⟩ : BufTy).Contents (Elt F)),
    unary main_v8858 main_v8859 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8855 main_v8859 main_v8860 (mulf : (⟨S4x256x16, .f32⟩ : BufTy).Contents (Elt F) → (⟨S4x256x16, .f32⟩ : BufTy).Contents (Elt F) → (⟨S4x256x16, .f32⟩ : BufTy).Contents (Elt F)),
    nullary main_cst_884 (constant S_ .f32 0x00000000#32),
    binary main_v8860 main_cst_884 main_v8861 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_885 (constantI S_ 32 442#32),
    unary main_c_885 main_v8862 (broadcastInDim S1 ![] bcast_S_S1 : (⟨S_, .i32⟩ : BufTy).Contents (Elt F) → (⟨S1, .i32⟩ : BufTy).Contents (Elt F)),
    ternary main_v8843 main_v8862 main_v8861 main_v8863 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps442_ok : (stepOps442 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step442_val (V : Valuation τ sig (Elt Ideal)) :
    after (stepOps442 (F := Ideal)) V (no_index (Proc.devRef .tc main_v8855)) = stepH 442 (by decide) (V (Proc.devRef .tc main_arg0)) (V (Proc.devRef .tc main_v3)) (V (Proc.devRef .tc main_arg2)) (V (Proc.devRef .tc main_v8835))
    ∧ after (stepOps442 (F := Ideal)) V (no_index (Proc.devRef .tc main_v8863)) = stepY 442 (by decide) (V (Proc.devRef .tc main_arg3)) (stepH 442 (by decide) (V (Proc.devRef .tc main_arg0)) (V (Proc.devRef .tc main_v3)) (V (Proc.devRef .tc main_arg2)) (V (Proc.devRef .tc main_v8835))) (V (Proc.devRef .tc main_v8843)) := by
  simp only [stepOps442]
  after_results_simp
  first | exact ⟨rfl, rfl⟩ | fail "value"
/-- Step 443 of the loop: operations 9753 … 9774 of the program. -/
abbrev stepOps443 : List (HloOp τ sig (Elt F)) :=
  [ unary main_v3 main_v8864 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8855 main_v8864 main_v8865 (mulf : (⟨S4x256x16, .f32⟩ : BufTy).Contents (Elt F) → (⟨S4x256x16, .f32⟩ : BufTy).Contents (Elt F) → (⟨S4x256x16, .f32⟩ : BufTy).Contents (Elt F)),
    unary main_arg0 main_v8866 ((extractStridedSlice S4x1x256 ![0, 443, 0] · slices_S4x512x256_S4x1x256_0_443_0) : (⟨S4x512x256, .f32⟩ : BufTy).Contents (Elt F) → (⟨S4x1x256, .f32⟩ : BufTy).Contents (Elt F)),
    reshape main_v8866 main_v8867 rfl shapeCasts_S4x1x256_S4x256,
    unary main_v8867 main_v8868 (broadcastInDim S4x256x1 ![0, 1] bcast_S4x256_S4x256x1_0_1 : (⟨S4x256, .f32⟩ : BufTy).Contents (Elt F) → (⟨S4x256x1, .f32⟩ : BufTy).Contents (Elt F)),
    unary main_arg2 main_v8869 ((extractStridedSlice S4x1x16 ![0, 443, 0] · slices_S4x512x16_S4x1x16_0_443_0) : (⟨S4x512x16, .f32⟩ : BufTy).Contents (Elt F) → (⟨S4x1x16, .f32⟩ : BufTy).Contents (Elt F)),
    reshape main_v8869 main_v8870 rfl shapeCasts_S4x1x16_S4x16,
    unary main_v8870 main_v8871 (broadcastInDim S4x1x16 ![0, 2] bcast_S4x16_S4x1x16_0_2 : (⟨S4x16, .f32⟩ : BufTy).Contents (Elt F) → (⟨S4x1x16, .f32⟩ : BufTy).Contents (Elt F)),
    unary main_v8868 main_v8872 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8871 main_v8873 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8872 main_v8873 main_v8874 (mulf : (⟨S4x256x16, .f32⟩ : BufTy).Contents (Elt F) → (⟨S4x256x16, .f32⟩ : BufTy).Contents (Elt F) → (⟨S4x256x16, .f32⟩ : BufTy).Contents (Elt F)),
    binary main_v8865 main_v8874 main_v8875 (addf : (⟨S4x256x16, .f32⟩ : BufTy).Contents (Elt F) → (⟨S4x256x16, .f32⟩ : BufTy).Contents (Elt F) → (⟨S4x256x16, .f32⟩ : BufTy).Contents (Elt F)),
    unary main_arg3 main_v8876 ((extractStridedSlice S4x1x16 ![0, 443, 0] · slices_S4x512x16_S4x1x16_0_443_0) : (⟨S4x512x16, .f32⟩ : BufTy).Contents (Elt F) → (⟨S4x1x16, .f32⟩ : BufTy).Contents (Elt F)),
    reshape main_v8876 main_v8877 rfl shapeCasts_S4x1x16_S4x16,
    unary main_v8877 main_v8878 (broadcastInDim S4x1x16 ![0, 2] bcast_S4x16_S4x1x16_0_2 : (⟨S4x16, .f32⟩ : BufTy).Contents (Elt F) → (⟨S4x1x16, .f32⟩ : BufTy).Contents (Elt F)),
    unary main_v8878 main_v8879 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8875 main_v8879 main_v8880 (mulf : (⟨S4x256x16, .f32⟩ : BufTy).Contents (Elt F) → (⟨S4x256x16, .f32⟩ : BufTy).Contents (Elt F) → (⟨S4x256x16, .f32⟩ : BufTy).Contents (Elt F)),
    nullary main_cst_886 (constant S_ .f32 0x00000000#32),
    binary main_v8880 main_cst_886 main_v8881 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_887 (constantI S_ 32 443#32),
    unary main_c_887 main_v8882 (broadcastInDim S1 ![] bcast_S_S1 : (⟨S_, .i32⟩ : BufTy).Contents (Elt F) → (⟨S1, .i32⟩ : BufTy).Contents (Elt F)),
    ternary main_v8863 main_v8882 main_v8881 main_v8883 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps443_ok : (stepOps443 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step443_val (V : Valuation τ sig (Elt Ideal)) :
    after (stepOps443 (F := Ideal)) V (no_index (Proc.devRef .tc main_v8875)) = stepH 443 (by decide) (V (Proc.devRef .tc main_arg0)) (V (Proc.devRef .tc main_v3)) (V (Proc.devRef .tc main_arg2)) (V (Proc.devRef .tc main_v8855))
    ∧ after (stepOps443 (F := Ideal)) V (no_index (Proc.devRef .tc main_v8883)) = stepY 443 (by decide) (V (Proc.devRef .tc main_arg3)) (stepH 443 (by decide) (V (Proc.devRef .tc main_arg0)) (V (Proc.devRef .tc main_v3)) (V (Proc.devRef .tc main_arg2)) (V (Proc.devRef .tc main_v8855))) (V (Proc.devRef .tc main_v8863)) := by
  simp only [stepOps443]
  after_results_simp
  first | exact ⟨rfl, rfl⟩ | fail "value"
/-- Step 444 of the loop: operations 9775 … 9796 of the program. -/
abbrev stepOps444 : List (HloOp τ sig (Elt F)) :=
  [ unary main_v3 main_v8884 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8875 main_v8884 main_v8885 (mulf : (⟨S4x256x16, .f32⟩ : BufTy).Contents (Elt F) → (⟨S4x256x16, .f32⟩ : BufTy).Contents (Elt F) → (⟨S4x256x16, .f32⟩ : BufTy).Contents (Elt F)),
    unary main_arg0 main_v8886 ((extractStridedSlice S4x1x256 ![0, 444, 0] · slices_S4x512x256_S4x1x256_0_444_0) : (⟨S4x512x256, .f32⟩ : BufTy).Contents (Elt F) → (⟨S4x1x256, .f32⟩ : BufTy).Contents (Elt F)),
    reshape main_v8886 main_v8887 rfl shapeCasts_S4x1x256_S4x256,
    unary main_v8887 main_v8888 (broadcastInDim S4x256x1 ![0, 1] bcast_S4x256_S4x256x1_0_1 : (⟨S4x256, .f32⟩ : BufTy).Contents (Elt F) → (⟨S4x256x1, .f32⟩ : BufTy).Contents (Elt F)),
    unary main_arg2 main_v8889 ((extractStridedSlice S4x1x16 ![0, 444, 0] · slices_S4x512x16_S4x1x16_0_444_0) : (⟨S4x512x16, .f32⟩ : BufTy).Contents (Elt F) → (⟨S4x1x16, .f32⟩ : BufTy).Contents (Elt F)),
    reshape main_v8889 main_v8890 rfl shapeCasts_S4x1x16_S4x16,
    unary main_v8890 main_v8891 (broadcastInDim S4x1x16 ![0, 2] bcast_S4x16_S4x1x16_0_2 : (⟨S4x16, .f32⟩ : BufTy).Contents (Elt F) → (⟨S4x1x16, .f32⟩ : BufTy).Contents (Elt F)),
    unary main_v8888 main_v8892 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8891 main_v8893 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8892 main_v8893 main_v8894 (mulf : (⟨S4x256x16, .f32⟩ : BufTy).Contents (Elt F) → (⟨S4x256x16, .f32⟩ : BufTy).Contents (Elt F) → (⟨S4x256x16, .f32⟩ : BufTy).Contents (Elt F)),
    binary main_v8885 main_v8894 main_v8895 (addf : (⟨S4x256x16, .f32⟩ : BufTy).Contents (Elt F) → (⟨S4x256x16, .f32⟩ : BufTy).Contents (Elt F) → (⟨S4x256x16, .f32⟩ : BufTy).Contents (Elt F)),
    unary main_arg3 main_v8896 ((extractStridedSlice S4x1x16 ![0, 444, 0] · slices_S4x512x16_S4x1x16_0_444_0) : (⟨S4x512x16, .f32⟩ : BufTy).Contents (Elt F) → (⟨S4x1x16, .f32⟩ : BufTy).Contents (Elt F)),
    reshape main_v8896 main_v8897 rfl shapeCasts_S4x1x16_S4x16,
    unary main_v8897 main_v8898 (broadcastInDim S4x1x16 ![0, 2] bcast_S4x16_S4x1x16_0_2 : (⟨S4x16, .f32⟩ : BufTy).Contents (Elt F) → (⟨S4x1x16, .f32⟩ : BufTy).Contents (Elt F)),
    unary main_v8898 main_v8899 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8895 main_v8899 main_v8900 (mulf : (⟨S4x256x16, .f32⟩ : BufTy).Contents (Elt F) → (⟨S4x256x16, .f32⟩ : BufTy).Contents (Elt F) → (⟨S4x256x16, .f32⟩ : BufTy).Contents (Elt F)),
    nullary main_cst_888 (constant S_ .f32 0x00000000#32),
    binary main_v8900 main_cst_888 main_v8901 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_889 (constantI S_ 32 444#32),
    unary main_c_889 main_v8902 (broadcastInDim S1 ![] bcast_S_S1 : (⟨S_, .i32⟩ : BufTy).Contents (Elt F) → (⟨S1, .i32⟩ : BufTy).Contents (Elt F)),
    ternary main_v8883 main_v8902 main_v8901 main_v8903 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps444_ok : (stepOps444 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step444_val (V : Valuation τ sig (Elt Ideal)) :
    after (stepOps444 (F := Ideal)) V (no_index (Proc.devRef .tc main_v8895)) = stepH 444 (by decide) (V (Proc.devRef .tc main_arg0)) (V (Proc.devRef .tc main_v3)) (V (Proc.devRef .tc main_arg2)) (V (Proc.devRef .tc main_v8875))
    ∧ after (stepOps444 (F := Ideal)) V (no_index (Proc.devRef .tc main_v8903)) = stepY 444 (by decide) (V (Proc.devRef .tc main_arg3)) (stepH 444 (by decide) (V (Proc.devRef .tc main_arg0)) (V (Proc.devRef .tc main_v3)) (V (Proc.devRef .tc main_arg2)) (V (Proc.devRef .tc main_v8875))) (V (Proc.devRef .tc main_v8883)) := by
  simp only [stepOps444]
  after_results_simp
  first | exact ⟨rfl, rfl⟩ | fail "value"
/-- Step 445 of the loop: operations 9797 … 9818 of the program. -/
abbrev stepOps445 : List (HloOp τ sig (Elt F)) :=
  [ unary main_v3 main_v8904 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8895 main_v8904 main_v8905 (mulf : (⟨S4x256x16, .f32⟩ : BufTy).Contents (Elt F) → (⟨S4x256x16, .f32⟩ : BufTy).Contents (Elt F) → (⟨S4x256x16, .f32⟩ : BufTy).Contents (Elt F)),
    unary main_arg0 main_v8906 ((extractStridedSlice S4x1x256 ![0, 445, 0] · slices_S4x512x256_S4x1x256_0_445_0) : (⟨S4x512x256, .f32⟩ : BufTy).Contents (Elt F) → (⟨S4x1x256, .f32⟩ : BufTy).Contents (Elt F)),
    reshape main_v8906 main_v8907 rfl shapeCasts_S4x1x256_S4x256,
    unary main_v8907 main_v8908 (broadcastInDim S4x256x1 ![0, 1] bcast_S4x256_S4x256x1_0_1 : (⟨S4x256, .f32⟩ : BufTy).Contents (Elt F) → (⟨S4x256x1, .f32⟩ : BufTy).Contents (Elt F)),
    unary main_arg2 main_v8909 ((extractStridedSlice S4x1x16 ![0, 445, 0] · slices_S4x512x16_S4x1x16_0_445_0) : (⟨S4x512x16, .f32⟩ : BufTy).Contents (Elt F) → (⟨S4x1x16, .f32⟩ : BufTy).Contents (Elt F)),
    reshape main_v8909 main_v8910 rfl shapeCasts_S4x1x16_S4x16,
    unary main_v8910 main_v8911 (broadcastInDim S4x1x16 ![0, 2] bcast_S4x16_S4x1x16_0_2 : (⟨S4x16, .f32⟩ : BufTy).Contents (Elt F) → (⟨S4x1x16, .f32⟩ : BufTy).Contents (Elt F)),
    unary main_v8908 main_v8912 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8911 main_v8913 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8912 main_v8913 main_v8914 (mulf : (⟨S4x256x16, .f32⟩ : BufTy).Contents (Elt F) → (⟨S4x256x16, .f32⟩ : BufTy).Contents (Elt F) → (⟨S4x256x16, .f32⟩ : BufTy).Contents (Elt F)),
    binary main_v8905 main_v8914 main_v8915 (addf : (⟨S4x256x16, .f32⟩ : BufTy).Contents (Elt F) → (⟨S4x256x16, .f32⟩ : BufTy).Contents (Elt F) → (⟨S4x256x16, .f32⟩ : BufTy).Contents (Elt F)),
    unary main_arg3 main_v8916 ((extractStridedSlice S4x1x16 ![0, 445, 0] · slices_S4x512x16_S4x1x16_0_445_0) : (⟨S4x512x16, .f32⟩ : BufTy).Contents (Elt F) → (⟨S4x1x16, .f32⟩ : BufTy).Contents (Elt F)),
    reshape main_v8916 main_v8917 rfl shapeCasts_S4x1x16_S4x16,
    unary main_v8917 main_v8918 (broadcastInDim S4x1x16 ![0, 2] bcast_S4x16_S4x1x16_0_2 : (⟨S4x16, .f32⟩ : BufTy).Contents (Elt F) → (⟨S4x1x16, .f32⟩ : BufTy).Contents (Elt F)),
    unary main_v8918 main_v8919 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8915 main_v8919 main_v8920 (mulf : (⟨S4x256x16, .f32⟩ : BufTy).Contents (Elt F) → (⟨S4x256x16, .f32⟩ : BufTy).Contents (Elt F) → (⟨S4x256x16, .f32⟩ : BufTy).Contents (Elt F)),
    nullary main_cst_890 (constant S_ .f32 0x00000000#32),
    binary main_v8920 main_cst_890 main_v8921 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_891 (constantI S_ 32 445#32),
    unary main_c_891 main_v8922 (broadcastInDim S1 ![] bcast_S_S1 : (⟨S_, .i32⟩ : BufTy).Contents (Elt F) → (⟨S1, .i32⟩ : BufTy).Contents (Elt F)),
    ternary main_v8903 main_v8922 main_v8921 main_v8923 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps445_ok : (stepOps445 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step445_val (V : Valuation τ sig (Elt Ideal)) :
    after (stepOps445 (F := Ideal)) V (no_index (Proc.devRef .tc main_v8915)) = stepH 445 (by decide) (V (Proc.devRef .tc main_arg0)) (V (Proc.devRef .tc main_v3)) (V (Proc.devRef .tc main_arg2)) (V (Proc.devRef .tc main_v8895))
    ∧ after (stepOps445 (F := Ideal)) V (no_index (Proc.devRef .tc main_v8923)) = stepY 445 (by decide) (V (Proc.devRef .tc main_arg3)) (stepH 445 (by decide) (V (Proc.devRef .tc main_arg0)) (V (Proc.devRef .tc main_v3)) (V (Proc.devRef .tc main_arg2)) (V (Proc.devRef .tc main_v8895))) (V (Proc.devRef .tc main_v8903)) := by
  simp only [stepOps445]
  after_results_simp
  first | exact ⟨rfl, rfl⟩ | fail "value"
/-- Step 446 of the loop: operations 9819 … 9840 of the program. -/
abbrev stepOps446 : List (HloOp τ sig (Elt F)) :=
  [ unary main_v3 main_v8924 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8915 main_v8924 main_v8925 (mulf : (⟨S4x256x16, .f32⟩ : BufTy).Contents (Elt F) → (⟨S4x256x16, .f32⟩ : BufTy).Contents (Elt F) → (⟨S4x256x16, .f32⟩ : BufTy).Contents (Elt F)),
    unary main_arg0 main_v8926 ((extractStridedSlice S4x1x256 ![0, 446, 0] · slices_S4x512x256_S4x1x256_0_446_0) : (⟨S4x512x256, .f32⟩ : BufTy).Contents (Elt F) → (⟨S4x1x256, .f32⟩ : BufTy).Contents (Elt F)),
    reshape main_v8926 main_v8927 rfl shapeCasts_S4x1x256_S4x256,
    unary main_v8927 main_v8928 (broadcastInDim S4x256x1 ![0, 1] bcast_S4x256_S4x256x1_0_1 : (⟨S4x256, .f32⟩ : BufTy).Contents (Elt F) → (⟨S4x256x1, .f32⟩ : BufTy).Contents (Elt F)),
    unary main_arg2 main_v8929 ((extractStridedSlice S4x1x16 ![0, 446, 0] · slices_S4x512x16_S4x1x16_0_446_0) : (⟨S4x512x16, .f32⟩ : BufTy).Contents (Elt F) → (⟨S4x1x16, .f32⟩ : BufTy).Contents (Elt F)),
    reshape main_v8929 main_v8930 rfl shapeCasts_S4x1x16_S4x16,
    unary main_v8930 main_v8931 (broadcastInDim S4x1x16 ![0, 2] bcast_S4x16_S4x1x16_0_2 : (⟨S4x16, .f32⟩ : BufTy).Contents (Elt F) → (⟨S4x1x16, .f32⟩ : BufTy).Contents (Elt F)),
    unary main_v8928 main_v8932 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8931 main_v8933 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8932 main_v8933 main_v8934 (mulf : (⟨S4x256x16, .f32⟩ : BufTy).Contents (Elt F) → (⟨S4x256x16, .f32⟩ : BufTy).Contents (Elt F) → (⟨S4x256x16, .f32⟩ : BufTy).Contents (Elt F)),
    binary main_v8925 main_v8934 main_v8935 (addf : (⟨S4x256x16, .f32⟩ : BufTy).Contents (Elt F) → (⟨S4x256x16, .f32⟩ : BufTy).Contents (Elt F) → (⟨S4x256x16, .f32⟩ : BufTy).Contents (Elt F)),
    unary main_arg3 main_v8936 ((extractStridedSlice S4x1x16 ![0, 446, 0] · slices_S4x512x16_S4x1x16_0_446_0) : (⟨S4x512x16, .f32⟩ : BufTy).Contents (Elt F) → (⟨S4x1x16, .f32⟩ : BufTy).Contents (Elt F)),
    reshape main_v8936 main_v8937 rfl shapeCasts_S4x1x16_S4x16,
    unary main_v8937 main_v8938 (broadcastInDim S4x1x16 ![0, 2] bcast_S4x16_S4x1x16_0_2 : (⟨S4x16, .f32⟩ : BufTy).Contents (Elt F) → (⟨S4x1x16, .f32⟩ : BufTy).Contents (Elt F)),
    unary main_v8938 main_v8939 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8935 main_v8939 main_v8940 (mulf : (⟨S4x256x16, .f32⟩ : BufTy).Contents (Elt F) → (⟨S4x256x16, .f32⟩ : BufTy).Contents (Elt F) → (⟨S4x256x16, .f32⟩ : BufTy).Contents (Elt F)),
    nullary main_cst_892 (constant S_ .f32 0x00000000#32),
    binary main_v8940 main_cst_892 main_v8941 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_893 (constantI S_ 32 446#32),
    unary main_c_893 main_v8942 (broadcastInDim S1 ![] bcast_S_S1 : (⟨S_, .i32⟩ : BufTy).Contents (Elt F) → (⟨S1, .i32⟩ : BufTy).Contents (Elt F)),
    ternary main_v8923 main_v8942 main_v8941 main_v8943 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps446_ok : (stepOps446 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step446_val (V : Valuation τ sig (Elt Ideal)) :
    after (stepOps446 (F := Ideal)) V (no_index (Proc.devRef .tc main_v8935)) = stepH 446 (by decide) (V (Proc.devRef .tc main_arg0)) (V (Proc.devRef .tc main_v3)) (V (Proc.devRef .tc main_arg2)) (V (Proc.devRef .tc main_v8915))
    ∧ after (stepOps446 (F := Ideal)) V (no_index (Proc.devRef .tc main_v8943)) = stepY 446 (by decide) (V (Proc.devRef .tc main_arg3)) (stepH 446 (by decide) (V (Proc.devRef .tc main_arg0)) (V (Proc.devRef .tc main_v3)) (V (Proc.devRef .tc main_arg2)) (V (Proc.devRef .tc main_v8915))) (V (Proc.devRef .tc main_v8923)) := by
  simp only [stepOps446]
  after_results_simp
  first | exact ⟨rfl, rfl⟩ | fail "value"
/-- Step 447 of the loop: operations 9841 … 9862 of the program. -/
abbrev stepOps447 : List (HloOp τ sig (Elt F)) :=
  [ unary main_v3 main_v8944 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8935 main_v8944 main_v8945 (mulf : (⟨S4x256x16, .f32⟩ : BufTy).Contents (Elt F) → (⟨S4x256x16, .f32⟩ : BufTy).Contents (Elt F) → (⟨S4x256x16, .f32⟩ : BufTy).Contents (Elt F)),
    unary main_arg0 main_v8946 ((extractStridedSlice S4x1x256 ![0, 447, 0] · slices_S4x512x256_S4x1x256_0_447_0) : (⟨S4x512x256, .f32⟩ : BufTy).Contents (Elt F) → (⟨S4x1x256, .f32⟩ : BufTy).Contents (Elt F)),
    reshape main_v8946 main_v8947 rfl shapeCasts_S4x1x256_S4x256,
    unary main_v8947 main_v8948 (broadcastInDim S4x256x1 ![0, 1] bcast_S4x256_S4x256x1_0_1 : (⟨S4x256, .f32⟩ : BufTy).Contents (Elt F) → (⟨S4x256x1, .f32⟩ : BufTy).Contents (Elt F)),
    unary main_arg2 main_v8949 ((extractStridedSlice S4x1x16 ![0, 447, 0] · slices_S4x512x16_S4x1x16_0_447_0) : (⟨S4x512x16, .f32⟩ : BufTy).Contents (Elt F) → (⟨S4x1x16, .f32⟩ : BufTy).Contents (Elt F)),
    reshape main_v8949 main_v8950 rfl shapeCasts_S4x1x16_S4x16,
    unary main_v8950 main_v8951 (broadcastInDim S4x1x16 ![0, 2] bcast_S4x16_S4x1x16_0_2 : (⟨S4x16, .f32⟩ : BufTy).Contents (Elt F) → (⟨S4x1x16, .f32⟩ : BufTy).Contents (Elt F)),
    unary main_v8948 main_v8952 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8951 main_v8953 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8952 main_v8953 main_v8954 (mulf : (⟨S4x256x16, .f32⟩ : BufTy).Contents (Elt F) → (⟨S4x256x16, .f32⟩ : BufTy).Contents (Elt F) → (⟨S4x256x16, .f32⟩ : BufTy).Contents (Elt F)),
    binary main_v8945 main_v8954 main_v8955 (addf : (⟨S4x256x16, .f32⟩ : BufTy).Contents (Elt F) → (⟨S4x256x16, .f32⟩ : BufTy).Contents (Elt F) → (⟨S4x256x16, .f32⟩ : BufTy).Contents (Elt F)),
    unary main_arg3 main_v8956 ((extractStridedSlice S4x1x16 ![0, 447, 0] · slices_S4x512x16_S4x1x16_0_447_0) : (⟨S4x512x16, .f32⟩ : BufTy).Contents (Elt F) → (⟨S4x1x16, .f32⟩ : BufTy).Contents (Elt F)),
    reshape main_v8956 main_v8957 rfl shapeCasts_S4x1x16_S4x16,
    unary main_v8957 main_v8958 (broadcastInDim S4x1x16 ![0, 2] bcast_S4x16_S4x1x16_0_2 : (⟨S4x16, .f32⟩ : BufTy).Contents (Elt F) → (⟨S4x1x16, .f32⟩ : BufTy).Contents (Elt F)),
    unary main_v8958 main_v8959 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8955 main_v8959 main_v8960 (mulf : (⟨S4x256x16, .f32⟩ : BufTy).Contents (Elt F) → (⟨S4x256x16, .f32⟩ : BufTy).Contents (Elt F) → (⟨S4x256x16, .f32⟩ : BufTy).Contents (Elt F)),
    nullary main_cst_894 (constant S_ .f32 0x00000000#32),
    binary main_v8960 main_cst_894 main_v8961 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_895 (constantI S_ 32 447#32),
    unary main_c_895 main_v8962 (broadcastInDim S1 ![] bcast_S_S1 : (⟨S_, .i32⟩ : BufTy).Contents (Elt F) → (⟨S1, .i32⟩ : BufTy).Contents (Elt F)),
    ternary main_v8943 main_v8962 main_v8961 main_v8963 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps447_ok : (stepOps447 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step447_val (V : Valuation τ sig (Elt Ideal)) :
    after (stepOps447 (F := Ideal)) V (no_index (Proc.devRef .tc main_v8955)) = stepH 447 (by decide) (V (Proc.devRef .tc main_arg0)) (V (Proc.devRef .tc main_v3)) (V (Proc.devRef .tc main_arg2)) (V (Proc.devRef .tc main_v8935))
    ∧ after (stepOps447 (F := Ideal)) V (no_index (Proc.devRef .tc main_v8963)) = stepY 447 (by decide) (V (Proc.devRef .tc main_arg3)) (stepH 447 (by decide) (V (Proc.devRef .tc main_arg0)) (V (Proc.devRef .tc main_v3)) (V (Proc.devRef .tc main_arg2)) (V (Proc.devRef .tc main_v8935))) (V (Proc.devRef .tc main_v8943)) := by
  simp only [stepOps447]
  after_results_simp
  first | exact ⟨rfl, rfl⟩ | fail "value"

end Cert.ReferenceIdeal.RefRun

end
-- ==== Proof.RefTableStep28.lean ====
/-
  Steps 448 … 463 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 448 of the loop: operations 9863 … 9884 of the program. -/
abbrev stepOps448 : List (HloOp τ sig (Elt F)) :=
  [ unary main_v3 main_v8964 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8955 main_v8964 main_v8965 (mulf : (⟨S4x256x16, .f32⟩ : BufTy).Contents (Elt F) → (⟨S4x256x16, .f32⟩ : BufTy).Contents (Elt F) → (⟨S4x256x16, .f32⟩ : BufTy).Contents (Elt F)),
    unary main_arg0 main_v8966 ((extractStridedSlice S4x1x256 ![0, 448, 0] · slices_S4x512x256_S4x1x256_0_448_0) : (⟨S4x512x256, .f32⟩ : BufTy).Contents (Elt F) → (⟨S4x1x256, .f32⟩ : BufTy).Contents (Elt F)),
    reshape main_v8966 main_v8967 rfl shapeCasts_S4x1x256_S4x256,
    unary main_v8967 main_v8968 (broadcastInDim S4x256x1 ![0, 1] bcast_S4x256_S4x256x1_0_1 : (⟨S4x256, .f32⟩ : BufTy).Contents (Elt F) → (⟨S4x256x1, .f32⟩ : BufTy).Contents (Elt F)),
    unary main_arg2 main_v8969 ((extractStridedSlice S4x1x16 ![0, 448, 0] · slices_S4x512x16_S4x1x16_0_448_0) : (⟨S4x512x16, .f32⟩ : BufTy).Contents (Elt F) → (⟨S4x1x16, .f32⟩ : BufTy).Contents (Elt F)),
    reshape main_v8969 main_v8970 rfl shapeCasts_S4x1x16_S4x16,
    unary main_v8970 main_v8971 (broadcastInDim S4x1x16 ![0, 2] bcast_S4x16_S4x1x16_0_2 : (⟨S4x16, .f32⟩ : BufTy).Contents (Elt F) → (⟨S4x1x16, .f32⟩ : BufTy).Contents (Elt F)),
    unary main_v8968 main_v8972 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8971 main_v8973 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8972 main_v8973 main_v8974 (mulf : (⟨S4x256x16, .f32⟩ : BufTy).Contents (Elt F) → (⟨S4x256x16, .f32⟩ : BufTy).Contents (Elt F) → (⟨S4x256x16, .f32⟩ : BufTy).Contents (Elt F)),
    binary main_v8965 main_v8974 main_v8975 (addf : (⟨S4x256x16, .f32⟩ : BufTy).Contents (Elt F) → (⟨S4x256x16, .f32⟩ : BufTy).Contents (Elt F) → (⟨S4x256x16, .f32⟩ : BufTy).Contents (Elt F)),
    unary main_arg3 main_v8976 ((extractStridedSlice S4x1x16 ![0, 448, 0] · slices_S4x512x16_S4x1x16_0_448_0) : (⟨S4x512x16, .f32⟩ : BufTy).Contents (Elt F) → (⟨S4x1x16, .f32⟩ : BufTy).Contents (Elt F)),
    reshape main_v8976 main_v8977 rfl shapeCasts_S4x1x16_S4x16,
    unary main_v8977 main_v8978 (broadcastInDim S4x1x16 ![0, 2] bcast_S4x16_S4x1x16_0_2 : (⟨S4x16, .f32⟩ : BufTy).Contents (Elt F) → (⟨S4x1x16, .f32⟩ : BufTy).Contents (Elt F)),
    unary main_v8978 main_v8979 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8975 main_v8979 main_v8980 (mulf : (⟨S4x256x16, .f32⟩ : BufTy).Contents (Elt F) → (⟨S4x256x16, .f32⟩ : BufTy).Contents (Elt F) → (⟨S4x256x16, .f32⟩ : BufTy).Contents (Elt F)),
    nullary main_cst_896 (constant S_ .f32 0x00000000#32),
    binary main_v8980 main_cst_896 main_v8981 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_897 (constantI S_ 32 448#32),
    unary main_c_897 main_v8982 (broadcastInDim S1 ![] bcast_S_S1 : (⟨S_, .i32⟩ : BufTy).Contents (Elt F) → (⟨S1, .i32⟩ : BufTy).Contents (Elt F)),
    ternary main_v8963 main_v8982 main_v8981 main_v8983 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps448_ok : (stepOps448 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step448_val (V : Valuation τ sig (Elt Ideal)) :
    after (stepOps448 (F := Ideal)) V (no_index (Proc.devRef .tc main_v8975)) = stepH 448 (by decide) (V (Proc.devRef .tc main_arg0)) (V (Proc.devRef .tc main_v3)) (V (Proc.devRef .tc main_arg2)) (V (Proc.devRef .tc main_v8955))
    ∧ after (stepOps448 (F := Ideal)) V (no_index (Proc.devRef .tc main_v8983)) = stepY 448 (by decide) (V (Proc.devRef .tc main_arg3)) (stepH 448 (by decide) (V (Proc.devRef .tc main_arg0)) (V (Proc.devRef .tc main_v3)) (V (Proc.devRef .tc main_arg2)) (V (Proc.devRef .tc main_v8955))) (V (Proc.devRef .tc main_v8963)) := by
  simp only [stepOps448]
  after_results_simp
  first | exact ⟨rfl, rfl⟩ | fail "value"
/-- Step 449 of the loop: operations 9885 … 9906 of the program. -/
abbrev stepOps449 : List (HloOp τ sig (Elt F)) :=
  [ unary main_v3 main_v8984 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8975 main_v8984 main_v8985 (mulf : (⟨S4x256x16, .f32⟩ : BufTy).Contents (Elt F) → (⟨S4x256x16, .f32⟩ : BufTy).Contents (Elt F) → (⟨S4x256x16, .f32⟩ : BufTy).Contents (Elt F)),
    unary main_arg0 main_v8986 ((extractStridedSlice S4x1x256 ![0, 449, 0] · slices_S4x512x256_S4x1x256_0_449_0) : (⟨S4x512x256, .f32⟩ : BufTy).Contents (Elt F) → (⟨S4x1x256, .f32⟩ : BufTy).Contents (Elt F)),
    reshape main_v8986 main_v8987 rfl shapeCasts_S4x1x256_S4x256,
    unary main_v8987 main_v8988 (broadcastInDim S4x256x1 ![0, 1] bcast_S4x256_S4x256x1_0_1 : (⟨S4x256, .f32⟩ : BufTy).Contents (Elt F) → (⟨S4x256x1, .f32⟩ : BufTy).Contents (Elt F)),
    unary main_arg2 main_v8989 ((extractStridedSlice S4x1x16 ![0, 449, 0] · slices_S4x512x16_S4x1x16_0_449_0) : (⟨S4x512x16, .f32⟩ : BufTy).Contents (Elt F) → (⟨S4x1x16, .f32⟩ : BufTy).Contents (Elt F)),
    reshape main_v8989 main_v8990 rfl shapeCasts_S4x1x16_S4x16,
    unary main_v8990 main_v8991 (broadcastInDim S4x1x16 ![0, 2] bcast_S4x16_S4x1x16_0_2 : (⟨S4x16, .f32⟩ : BufTy).Contents (Elt F) → (⟨S4x1x16, .f32⟩ : BufTy).Contents (Elt F)),
    unary main_v8988 main_v8992 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v8991 main_v8993 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8992 main_v8993 main_v8994 (mulf : (⟨S4x256x16, .f32⟩ : BufTy).Contents (Elt F) → (⟨S4x256x16, .f32⟩ : BufTy).Contents (Elt F) → (⟨S4x256x16, .f32⟩ : BufTy).Contents (Elt F)),
    binary main_v8985 main_v8994 main_v8995 (addf : (⟨S4x256x16, .f32⟩ : BufTy).Contents (Elt F) → (⟨S4x256x16, .f32⟩ : BufTy).Contents (Elt F) → (⟨S4x256x16, .f32⟩ : BufTy).Contents (Elt F)),
    unary main_arg3 main_v8996 ((extractStridedSlice S4x1x16 ![0, 449, 0] · slices_S4x512x16_S4x1x16_0_449_0) : (⟨S4x512x16, .f32⟩ : BufTy).Contents (Elt F) → (⟨S4x1x16, .f32⟩ : BufTy).Contents (Elt F)),
    reshape main_v8996 main_v8997 rfl shapeCasts_S4x1x16_S4x16,
    unary main_v8997 main_v8998 (broadcastInDim S4x1x16 ![0, 2] bcast_S4x16_S4x1x16_0_2 : (⟨S4x16, .f32⟩ : BufTy).Contents (Elt F) → (⟨S4x1x16, .f32⟩ : BufTy).Contents (Elt F)),
    unary main_v8998 main_v8999 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v8995 main_v8999 main_v9000 (mulf : (⟨S4x256x16, .f32⟩ : BufTy).Contents (Elt F) → (⟨S4x256x16, .f32⟩ : BufTy).Contents (Elt F) → (⟨S4x256x16, .f32⟩ : BufTy).Contents (Elt F)),
    nullary main_cst_898 (constant S_ .f32 0x00000000#32),
    binary main_v9000 main_cst_898 main_v9001 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_899 (constantI S_ 32 449#32),
    unary main_c_899 main_v9002 (broadcastInDim S1 ![] bcast_S_S1 : (⟨S_, .i32⟩ : BufTy).Contents (Elt F) → (⟨S1, .i32⟩ : BufTy).Contents (Elt F)),
    ternary main_v8983 main_v9002 main_v9001 main_v9003 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps449_ok : (stepOps449 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step449_val (V : Valuation τ sig (Elt Ideal)) :
    after (stepOps449 (F := Ideal)) V (no_index (Proc.devRef .tc main_v8995)) = stepH 449 (by decide) (V (Proc.devRef .tc main_arg0)) (V (Proc.devRef .tc main_v3)) (V (Proc.devRef .tc main_arg2)) (V (Proc.devRef .tc main_v8975))
    ∧ after (stepOps449 (F := Ideal)) V (no_index (Proc.devRef .tc main_v9003)) = stepY 449 (by decide) (V (Proc.devRef .tc main_arg3)) (stepH 449 (by decide) (V (Proc.devRef .tc main_arg0)) (V (Proc.devRef .tc main_v3)) (V (Proc.devRef .tc main_arg2)) (V (Proc.devRef .tc main_v8975))) (V (Proc.devRef .tc main_v8983)) := by
  simp only [stepOps449]
  after_results_simp
  first | exact ⟨rfl, rfl⟩ | fail "value"
/-- Step 450 of the loop: operations 9907 … 9928 of the program. -/
abbrev stepOps450 : List (HloOp τ sig (Elt F)) :=
  [ unary main_v3 main_v9004 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v8995 main_v9004 main_v9005 (mulf : (⟨S4x256x16, .f32⟩ : BufTy).Contents (Elt F) → (⟨S4x256x16, .f32⟩ : BufTy).Contents (Elt F) → (⟨S4x256x16, .f32⟩ : BufTy).Contents (Elt F)),
    unary main_arg0 main_v9006 ((extractStridedSlice S4x1x256 ![0, 450, 0] · slices_S4x512x256_S4x1x256_0_450_0) : (⟨S4x512x256, .f32⟩ : BufTy).Contents (Elt F) → (⟨S4x1x256, .f32⟩ : BufTy).Contents (Elt F)),
    reshape main_v9006 main_v9007 rfl shapeCasts_S4x1x256_S4x256,
    unary main_v9007 main_v9008 (broadcastInDim S4x256x1 ![0, 1] bcast_S4x256_S4x256x1_0_1 : (⟨S4x256, .f32⟩ : BufTy).Contents (Elt F) → (⟨S4x256x1, .f32⟩ : BufTy).Contents (Elt F)),
    unary main_arg2 main_v9009 ((extractStridedSlice S4x1x16 ![0, 450, 0] · slices_S4x512x16_S4x1x16_0_450_0) : (⟨S4x512x16, .f32⟩ : BufTy).Contents (Elt F) → (⟨S4x1x16, .f32⟩ : BufTy).Contents (Elt F)),
    reshape main_v9009 main_v9010 rfl shapeCasts_S4x1x16_S4x16,
    unary main_v9010 main_v9011 (broadcastInDim S4x1x16 ![0, 2] bcast_S4x16_S4x1x16_0_2 : (⟨S4x16, .f32⟩ : BufTy).Contents (Elt F) → (⟨S4x1x16, .f32⟩ : BufTy).Contents (Elt F)),
    unary main_v9008 main_v9012 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9011 main_v9013 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9012 main_v9013 main_v9014 (mulf : (⟨S4x256x16, .f32⟩ : BufTy).Contents (Elt F) → (⟨S4x256x16, .f32⟩ : BufTy).Contents (Elt F) → (⟨S4x256x16, .f32⟩ : BufTy).Contents (Elt F)),
    binary main_v9005 main_v9014 main_v9015 (addf : (⟨S4x256x16, .f32⟩ : BufTy).Contents (Elt F) → (⟨S4x256x16, .f32⟩ : BufTy).Contents (Elt F) → (⟨S4x256x16, .f32⟩ : BufTy).Contents (Elt F)),
    unary main_arg3 main_v9016 ((extractStridedSlice S4x1x16 ![0, 450, 0] · slices_S4x512x16_S4x1x16_0_450_0) : (⟨S4x512x16, .f32⟩ : BufTy).Contents (Elt F) → (⟨S4x1x16, .f32⟩ : BufTy).Contents (Elt F)),
    reshape main_v9016 main_v9017 rfl shapeCasts_S4x1x16_S4x16,
    unary main_v9017 main_v9018 (broadcastInDim S4x1x16 ![0, 2] bcast_S4x16_S4x1x16_0_2 : (⟨S4x16, .f32⟩ : BufTy).Contents (Elt F) → (⟨S4x1x16, .f32⟩ : BufTy).Contents (Elt F)),
    unary main_v9018 main_v9019 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9015 main_v9019 main_v9020 (mulf : (⟨S4x256x16, .f32⟩ : BufTy).Contents (Elt F) → (⟨S4x256x16, .f32⟩ : BufTy).Contents (Elt F) → (⟨S4x256x16, .f32⟩ : BufTy).Contents (Elt F)),
    nullary main_cst_900 (constant S_ .f32 0x00000000#32),
    binary main_v9020 main_cst_900 main_v9021 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_901 (constantI S_ 32 450#32),
    unary main_c_901 main_v9022 (broadcastInDim S1 ![] bcast_S_S1 : (⟨S_, .i32⟩ : BufTy).Contents (Elt F) → (⟨S1, .i32⟩ : BufTy).Contents (Elt F)),
    ternary main_v9003 main_v9022 main_v9021 main_v9023 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps450_ok : (stepOps450 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step450_val (V : Valuation τ sig (Elt Ideal)) :
    after (stepOps450 (F := Ideal)) V (no_index (Proc.devRef .tc main_v9015)) = stepH 450 (by decide) (V (Proc.devRef .tc main_arg0)) (V (Proc.devRef .tc main_v3)) (V (Proc.devRef .tc main_arg2)) (V (Proc.devRef .tc main_v8995))
    ∧ after (stepOps450 (F := Ideal)) V (no_index (Proc.devRef .tc main_v9023)) = stepY 450 (by decide) (V (Proc.devRef .tc main_arg3)) (stepH 450 (by decide) (V (Proc.devRef .tc main_arg0)) (V (Proc.devRef .tc main_v3)) (V (Proc.devRef .tc main_arg2)) (V (Proc.devRef .tc main_v8995))) (V (Proc.devRef .tc main_v9003)) := by
  simp only [stepOps450]
  after_results_simp
  first | exact ⟨rfl, rfl⟩ | fail "value"
/-- Step 451 of the loop: operations 9929 … 9950 of the program. -/
abbrev stepOps451 : List (HloOp τ sig (Elt F)) :=
  [ unary main_v3 main_v9024 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9015 main_v9024 main_v9025 (mulf : (⟨S4x256x16, .f32⟩ : BufTy).Contents (Elt F) → (⟨S4x256x16, .f32⟩ : BufTy).Contents (Elt F) → (⟨S4x256x16, .f32⟩ : BufTy).Contents (Elt F)),
    unary main_arg0 main_v9026 ((extractStridedSlice S4x1x256 ![0, 451, 0] · slices_S4x512x256_S4x1x256_0_451_0) : (⟨S4x512x256, .f32⟩ : BufTy).Contents (Elt F) → (⟨S4x1x256, .f32⟩ : BufTy).Contents (Elt F)),
    reshape main_v9026 main_v9027 rfl shapeCasts_S4x1x256_S4x256,
    unary main_v9027 main_v9028 (broadcastInDim S4x256x1 ![0, 1] bcast_S4x256_S4x256x1_0_1 : (⟨S4x256, .f32⟩ : BufTy).Contents (Elt F) → (⟨S4x256x1, .f32⟩ : BufTy).Contents (Elt F)),
    unary main_arg2 main_v9029 ((extractStridedSlice S4x1x16 ![0, 451, 0] · slices_S4x512x16_S4x1x16_0_451_0) : (⟨S4x512x16, .f32⟩ : BufTy).Contents (Elt F) → (⟨S4x1x16, .f32⟩ : BufTy).Contents (Elt F)),
    reshape main_v9029 main_v9030 rfl shapeCasts_S4x1x16_S4x16,
    unary main_v9030 main_v9031 (broadcastInDim S4x1x16 ![0, 2] bcast_S4x16_S4x1x16_0_2 : (⟨S4x16, .f32⟩ : BufTy).Contents (Elt F) → (⟨S4x1x16, .f32⟩ : BufTy).Contents (Elt F)),
    unary main_v9028 main_v9032 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9031 main_v9033 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9032 main_v9033 main_v9034 (mulf : (⟨S4x256x16, .f32⟩ : BufTy).Contents (Elt F) → (⟨S4x256x16, .f32⟩ : BufTy).Contents (Elt F) → (⟨S4x256x16, .f32⟩ : BufTy).Contents (Elt F)),
    binary main_v9025 main_v9034 main_v9035 (addf : (⟨S4x256x16, .f32⟩ : BufTy).Contents (Elt F) → (⟨S4x256x16, .f32⟩ : BufTy).Contents (Elt F) → (⟨S4x256x16, .f32⟩ : BufTy).Contents (Elt F)),
    unary main_arg3 main_v9036 ((extractStridedSlice S4x1x16 ![0, 451, 0] · slices_S4x512x16_S4x1x16_0_451_0) : (⟨S4x512x16, .f32⟩ : BufTy).Contents (Elt F) → (⟨S4x1x16, .f32⟩ : BufTy).Contents (Elt F)),
    reshape main_v9036 main_v9037 rfl shapeCasts_S4x1x16_S4x16,
    unary main_v9037 main_v9038 (broadcastInDim S4x1x16 ![0, 2] bcast_S4x16_S4x1x16_0_2 : (⟨S4x16, .f32⟩ : BufTy).Contents (Elt F) → (⟨S4x1x16, .f32⟩ : BufTy).Contents (Elt F)),
    unary main_v9038 main_v9039 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9035 main_v9039 main_v9040 (mulf : (⟨S4x256x16, .f32⟩ : BufTy).Contents (Elt F) → (⟨S4x256x16, .f32⟩ : BufTy).Contents (Elt F) → (⟨S4x256x16, .f32⟩ : BufTy).Contents (Elt F)),
    nullary main_cst_902 (constant S_ .f32 0x00000000#32),
    binary main_v9040 main_cst_902 main_v9041 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_903 (constantI S_ 32 451#32),
    unary main_c_903 main_v9042 (broadcastInDim S1 ![] bcast_S_S1 : (⟨S_, .i32⟩ : BufTy).Contents (Elt F) → (⟨S1, .i32⟩ : BufTy).Contents (Elt F)),
    ternary main_v9023 main_v9042 main_v9041 main_v9043 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps451_ok : (stepOps451 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step451_val (V : Valuation τ sig (Elt Ideal)) :
    after (stepOps451 (F := Ideal)) V (no_index (Proc.devRef .tc main_v9035)) = stepH 451 (by decide) (V (Proc.devRef .tc main_arg0)) (V (Proc.devRef .tc main_v3)) (V (Proc.devRef .tc main_arg2)) (V (Proc.devRef .tc main_v9015))
    ∧ after (stepOps451 (F := Ideal)) V (no_index (Proc.devRef .tc main_v9043)) = stepY 451 (by decide) (V (Proc.devRef .tc main_arg3)) (stepH 451 (by decide) (V (Proc.devRef .tc main_arg0)) (V (Proc.devRef .tc main_v3)) (V (Proc.devRef .tc main_arg2)) (V (Proc.devRef .tc main_v9015))) (V (Proc.devRef .tc main_v9023)) := by
  simp only [stepOps451]
  after_results_simp
  first | exact ⟨rfl, rfl⟩ | fail "value"
/-- Step 452 of the loop: operations 9951 … 9972 of the program. -/
abbrev stepOps452 : List (HloOp τ sig (Elt F)) :=
  [ unary main_v3 main_v9044 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9035 main_v9044 main_v9045 (mulf : (⟨S4x256x16, .f32⟩ : BufTy).Contents (Elt F) → (⟨S4x256x16, .f32⟩ : BufTy).Contents (Elt F) → (⟨S4x256x16, .f32⟩ : BufTy).Contents (Elt F)),
    unary main_arg0 main_v9046 ((extractStridedSlice S4x1x256 ![0, 452, 0] · slices_S4x512x256_S4x1x256_0_452_0) : (⟨S4x512x256, .f32⟩ : BufTy).Contents (Elt F) → (⟨S4x1x256, .f32⟩ : BufTy).Contents (Elt F)),
    reshape main_v9046 main_v9047 rfl shapeCasts_S4x1x256_S4x256,
    unary main_v9047 main_v9048 (broadcastInDim S4x256x1 ![0, 1] bcast_S4x256_S4x256x1_0_1 : (⟨S4x256, .f32⟩ : BufTy).Contents (Elt F) → (⟨S4x256x1, .f32⟩ : BufTy).Contents (Elt F)),
    unary main_arg2 main_v9049 ((extractStridedSlice S4x1x16 ![0, 452, 0] · slices_S4x512x16_S4x1x16_0_452_0) : (⟨S4x512x16, .f32⟩ : BufTy).Contents (Elt F) → (⟨S4x1x16, .f32⟩ : BufTy).Contents (Elt F)),
    reshape main_v9049 main_v9050 rfl shapeCasts_S4x1x16_S4x16,
    unary main_v9050 main_v9051 (broadcastInDim S4x1x16 ![0, 2] bcast_S4x16_S4x1x16_0_2 : (⟨S4x16, .f32⟩ : BufTy).Contents (Elt F) → (⟨S4x1x16, .f32⟩ : BufTy).Contents (Elt F)),
    unary main_v9048 main_v9052 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9051 main_v9053 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9052 main_v9053 main_v9054 (mulf : (⟨S4x256x16, .f32⟩ : BufTy).Contents (Elt F) → (⟨S4x256x16, .f32⟩ : BufTy).Contents (Elt F) → (⟨S4x256x16, .f32⟩ : BufTy).Contents (Elt F)),
    binary main_v9045 main_v9054 main_v9055 (addf : (⟨S4x256x16, .f32⟩ : BufTy).Contents (Elt F) → (⟨S4x256x16, .f32⟩ : BufTy).Contents (Elt F) → (⟨S4x256x16, .f32⟩ : BufTy).Contents (Elt F)),
    unary main_arg3 main_v9056 ((extractStridedSlice S4x1x16 ![0, 452, 0] · slices_S4x512x16_S4x1x16_0_452_0) : (⟨S4x512x16, .f32⟩ : BufTy).Contents (Elt F) → (⟨S4x1x16, .f32⟩ : BufTy).Contents (Elt F)),
    reshape main_v9056 main_v9057 rfl shapeCasts_S4x1x16_S4x16,
    unary main_v9057 main_v9058 (broadcastInDim S4x1x16 ![0, 2] bcast_S4x16_S4x1x16_0_2 : (⟨S4x16, .f32⟩ : BufTy).Contents (Elt F) → (⟨S4x1x16, .f32⟩ : BufTy).Contents (Elt F)),
    unary main_v9058 main_v9059 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9055 main_v9059 main_v9060 (mulf : (⟨S4x256x16, .f32⟩ : BufTy).Contents (Elt F) → (⟨S4x256x16, .f32⟩ : BufTy).Contents (Elt F) → (⟨S4x256x16, .f32⟩ : BufTy).Contents (Elt F)),
    nullary main_cst_904 (constant S_ .f32 0x00000000#32),
    binary main_v9060 main_cst_904 main_v9061 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_905 (constantI S_ 32 452#32),
    unary main_c_905 main_v9062 (broadcastInDim S1 ![] bcast_S_S1 : (⟨S_, .i32⟩ : BufTy).Contents (Elt F) → (⟨S1, .i32⟩ : BufTy).Contents (Elt F)),
    ternary main_v9043 main_v9062 main_v9061 main_v9063 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps452_ok : (stepOps452 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step452_val (V : Valuation τ sig (Elt Ideal)) :
    after (stepOps452 (F := Ideal)) V (no_index (Proc.devRef .tc main_v9055)) = stepH 452 (by decide) (V (Proc.devRef .tc main_arg0)) (V (Proc.devRef .tc main_v3)) (V (Proc.devRef .tc main_arg2)) (V (Proc.devRef .tc main_v9035))
    ∧ after (stepOps452 (F := Ideal)) V (no_index (Proc.devRef .tc main_v9063)) = stepY 452 (by decide) (V (Proc.devRef .tc main_arg3)) (stepH 452 (by decide) (V (Proc.devRef .tc main_arg0)) (V (Proc.devRef .tc main_v3)) (V (Proc.devRef .tc main_arg2)) (V (Proc.devRef .tc main_v9035))) (V (Proc.devRef .tc main_v9043)) := by
  simp only [stepOps452]
  after_results_simp
  first | exact ⟨rfl, rfl⟩ | fail "value"
/-- Step 453 of the loop: operations 9973 … 9994 of the program. -/
abbrev stepOps453 : List (HloOp τ sig (Elt F)) :=
  [ unary main_v3 main_v9064 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9055 main_v9064 main_v9065 (mulf : (⟨S4x256x16, .f32⟩ : BufTy).Contents (Elt F) → (⟨S4x256x16, .f32⟩ : BufTy).Contents (Elt F) → (⟨S4x256x16, .f32⟩ : BufTy).Contents (Elt F)),
    unary main_arg0 main_v9066 ((extractStridedSlice S4x1x256 ![0, 453, 0] · slices_S4x512x256_S4x1x256_0_453_0) : (⟨S4x512x256, .f32⟩ : BufTy).Contents (Elt F) → (⟨S4x1x256, .f32⟩ : BufTy).Contents (Elt F)),
    reshape main_v9066 main_v9067 rfl shapeCasts_S4x1x256_S4x256,
    unary main_v9067 main_v9068 (broadcastInDim S4x256x1 ![0, 1] bcast_S4x256_S4x256x1_0_1 : (⟨S4x256, .f32⟩ : BufTy).Contents (Elt F) → (⟨S4x256x1, .f32⟩ : BufTy).Contents (Elt F)),
    unary main_arg2 main_v9069 ((extractStridedSlice S4x1x16 ![0, 453, 0] · slices_S4x512x16_S4x1x16_0_453_0) : (⟨S4x512x16, .f32⟩ : BufTy).Contents (Elt F) → (⟨S4x1x16, .f32⟩ : BufTy).Contents (Elt F)),
    reshape main_v9069 main_v9070 rfl shapeCasts_S4x1x16_S4x16,
    unary main_v9070 main_v9071 (broadcastInDim S4x1x16 ![0, 2] bcast_S4x16_S4x1x16_0_2 : (⟨S4x16, .f32⟩ : BufTy).Contents (Elt F) → (⟨S4x1x16, .f32⟩ : BufTy).Contents (Elt F)),
    unary main_v9068 main_v9072 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9071 main_v9073 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9072 main_v9073 main_v9074 (mulf : (⟨S4x256x16, .f32⟩ : BufTy).Contents (Elt F) → (⟨S4x256x16, .f32⟩ : BufTy).Contents (Elt F) → (⟨S4x256x16, .f32⟩ : BufTy).Contents (Elt F)),
    binary main_v9065 main_v9074 main_v9075 (addf : (⟨S4x256x16, .f32⟩ : BufTy).Contents (Elt F) → (⟨S4x256x16, .f32⟩ : BufTy).Contents (Elt F) → (⟨S4x256x16, .f32⟩ : BufTy).Contents (Elt F)),
    unary main_arg3 main_v9076 ((extractStridedSlice S4x1x16 ![0, 453, 0] · slices_S4x512x16_S4x1x16_0_453_0) : (⟨S4x512x16, .f32⟩ : BufTy).Contents (Elt F) → (⟨S4x1x16, .f32⟩ : BufTy).Contents (Elt F)),
    reshape main_v9076 main_v9077 rfl shapeCasts_S4x1x16_S4x16,
    unary main_v9077 main_v9078 (broadcastInDim S4x1x16 ![0, 2] bcast_S4x16_S4x1x16_0_2 : (⟨S4x16, .f32⟩ : BufTy).Contents (Elt F) → (⟨S4x1x16, .f32⟩ : BufTy).Contents (Elt F)),
    unary main_v9078 main_v9079 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9075 main_v9079 main_v9080 (mulf : (⟨S4x256x16, .f32⟩ : BufTy).Contents (Elt F) → (⟨S4x256x16, .f32⟩ : BufTy).Contents (Elt F) → (⟨S4x256x16, .f32⟩ : BufTy).Contents (Elt F)),
    nullary main_cst_906 (constant S_ .f32 0x00000000#32),
    binary main_v9080 main_cst_906 main_v9081 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_907 (constantI S_ 32 453#32),
    unary main_c_907 main_v9082 (broadcastInDim S1 ![] bcast_S_S1 : (⟨S_, .i32⟩ : BufTy).Contents (Elt F) → (⟨S1, .i32⟩ : BufTy).Contents (Elt F)),
    ternary main_v9063 main_v9082 main_v9081 main_v9083 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps453_ok : (stepOps453 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step453_val (V : Valuation τ sig (Elt Ideal)) :
    after (stepOps453 (F := Ideal)) V (no_index (Proc.devRef .tc main_v9075)) = stepH 453 (by decide) (V (Proc.devRef .tc main_arg0)) (V (Proc.devRef .tc main_v3)) (V (Proc.devRef .tc main_arg2)) (V (Proc.devRef .tc main_v9055))
    ∧ after (stepOps453 (F := Ideal)) V (no_index (Proc.devRef .tc main_v9083)) = stepY 453 (by decide) (V (Proc.devRef .tc main_arg3)) (stepH 453 (by decide) (V (Proc.devRef .tc main_arg0)) (V (Proc.devRef .tc main_v3)) (V (Proc.devRef .tc main_arg2)) (V (Proc.devRef .tc main_v9055))) (V (Proc.devRef .tc main_v9063)) := by
  simp only [stepOps453]
  after_results_simp
  first | exact ⟨rfl, rfl⟩ | fail "value"
/-- Step 454 of the loop: operations 9995 … 10016 of the program. -/
abbrev stepOps454 : List (HloOp τ sig (Elt F)) :=
  [ unary main_v3 main_v9084 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9075 main_v9084 main_v9085 (mulf : (⟨S4x256x16, .f32⟩ : BufTy).Contents (Elt F) → (⟨S4x256x16, .f32⟩ : BufTy).Contents (Elt F) → (⟨S4x256x16, .f32⟩ : BufTy).Contents (Elt F)),
    unary main_arg0 main_v9086 ((extractStridedSlice S4x1x256 ![0, 454, 0] · slices_S4x512x256_S4x1x256_0_454_0) : (⟨S4x512x256, .f32⟩ : BufTy).Contents (Elt F) → (⟨S4x1x256, .f32⟩ : BufTy).Contents (Elt F)),
    reshape main_v9086 main_v9087 rfl shapeCasts_S4x1x256_S4x256,
    unary main_v9087 main_v9088 (broadcastInDim S4x256x1 ![0, 1] bcast_S4x256_S4x256x1_0_1 : (⟨S4x256, .f32⟩ : BufTy).Contents (Elt F) → (⟨S4x256x1, .f32⟩ : BufTy).Contents (Elt F)),
    unary main_arg2 main_v9089 ((extractStridedSlice S4x1x16 ![0, 454, 0] · slices_S4x512x16_S4x1x16_0_454_0) : (⟨S4x512x16, .f32⟩ : BufTy).Contents (Elt F) → (⟨S4x1x16, .f32⟩ : BufTy).Contents (Elt F)),
    reshape main_v9089 main_v9090 rfl shapeCasts_S4x1x16_S4x16,
    unary main_v9090 main_v9091 (broadcastInDim S4x1x16 ![0, 2] bcast_S4x16_S4x1x16_0_2 : (⟨S4x16, .f32⟩ : BufTy).Contents (Elt F) → (⟨S4x1x16, .f32⟩ : BufTy).Contents (Elt F)),
    unary main_v9088 main_v9092 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9091 main_v9093 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9092 main_v9093 main_v9094 (mulf : (⟨S4x256x16, .f32⟩ : BufTy).Contents (Elt F) → (⟨S4x256x16, .f32⟩ : BufTy).Contents (Elt F) → (⟨S4x256x16, .f32⟩ : BufTy).Contents (Elt F)),
    binary main_v9085 main_v9094 main_v9095 (addf : (⟨S4x256x16, .f32⟩ : BufTy).Contents (Elt F) → (⟨S4x256x16, .f32⟩ : BufTy).Contents (Elt F) → (⟨S4x256x16, .f32⟩ : BufTy).Contents (Elt F)),
    unary main_arg3 main_v9096 ((extractStridedSlice S4x1x16 ![0, 454, 0] · slices_S4x512x16_S4x1x16_0_454_0) : (⟨S4x512x16, .f32⟩ : BufTy).Contents (Elt F) → (⟨S4x1x16, .f32⟩ : BufTy).Contents (Elt F)),
    reshape main_v9096 main_v9097 rfl shapeCasts_S4x1x16_S4x16,
    unary main_v9097 main_v9098 (broadcastInDim S4x1x16 ![0, 2] bcast_S4x16_S4x1x16_0_2 : (⟨S4x16, .f32⟩ : BufTy).Contents (Elt F) → (⟨S4x1x16, .f32⟩ : BufTy).Contents (Elt F)),
    unary main_v9098 main_v9099 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9095 main_v9099 main_v9100 (mulf : (⟨S4x256x16, .f32⟩ : BufTy).Contents (Elt F) → (⟨S4x256x16, .f32⟩ : BufTy).Contents (Elt F) → (⟨S4x256x16, .f32⟩ : BufTy).Contents (Elt F)),
    nullary main_cst_908 (constant S_ .f32 0x00000000#32),
    binary main_v9100 main_cst_908 main_v9101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_909 (constantI S_ 32 454#32),
    unary main_c_909 main_v9102 (broadcastInDim S1 ![] bcast_S_S1 : (⟨S_, .i32⟩ : BufTy).Contents (Elt F) → (⟨S1, .i32⟩ : BufTy).Contents (Elt F)),
    ternary main_v9083 main_v9102 main_v9101 main_v9103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps454_ok : (stepOps454 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step454_val (V : Valuation τ sig (Elt Ideal)) :
    after (stepOps454 (F := Ideal)) V (no_index (Proc.devRef .tc main_v9095)) = stepH 454 (by decide) (V (Proc.devRef .tc main_arg0)) (V (Proc.devRef .tc main_v3)) (V (Proc.devRef .tc main_arg2)) (V (Proc.devRef .tc main_v9075))
    ∧ after (stepOps454 (F := Ideal)) V (no_index (Proc.devRef .tc main_v9103)) = stepY 454 (by decide) (V (Proc.devRef .tc main_arg3)) (stepH 454 (by decide) (V (Proc.devRef .tc main_arg0)) (V (Proc.devRef .tc main_v3)) (V (Proc.devRef .tc main_arg2)) (V (Proc.devRef .tc main_v9075))) (V (Proc.devRef .tc main_v9083)) := by
  simp only [stepOps454]
  after_results_simp
  first | exact ⟨rfl, rfl⟩ | fail "value"
/-- Step 455 of the loop: operations 10017 … 10038 of the program. -/
abbrev stepOps455 : List (HloOp τ sig (Elt F)) :=
  [ unary main_v3 main_v9104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9095 main_v9104 main_v9105 (mulf : (⟨S4x256x16, .f32⟩ : BufTy).Contents (Elt F) → (⟨S4x256x16, .f32⟩ : BufTy).Contents (Elt F) → (⟨S4x256x16, .f32⟩ : BufTy).Contents (Elt F)),
    unary main_arg0 main_v9106 ((extractStridedSlice S4x1x256 ![0, 455, 0] · slices_S4x512x256_S4x1x256_0_455_0) : (⟨S4x512x256, .f32⟩ : BufTy).Contents (Elt F) → (⟨S4x1x256, .f32⟩ : BufTy).Contents (Elt F)),
    reshape main_v9106 main_v9107 rfl shapeCasts_S4x1x256_S4x256,
    unary main_v9107 main_v9108 (broadcastInDim S4x256x1 ![0, 1] bcast_S4x256_S4x256x1_0_1 : (⟨S4x256, .f32⟩ : BufTy).Contents (Elt F) → (⟨S4x256x1, .f32⟩ : BufTy).Contents (Elt F)),
    unary main_arg2 main_v9109 ((extractStridedSlice S4x1x16 ![0, 455, 0] · slices_S4x512x16_S4x1x16_0_455_0) : (⟨S4x512x16, .f32⟩ : BufTy).Contents (Elt F) → (⟨S4x1x16, .f32⟩ : BufTy).Contents (Elt F)),
    reshape main_v9109 main_v9110 rfl shapeCasts_S4x1x16_S4x16,
    unary main_v9110 main_v9111 (broadcastInDim S4x1x16 ![0, 2] bcast_S4x16_S4x1x16_0_2 : (⟨S4x16, .f32⟩ : BufTy).Contents (Elt F) → (⟨S4x1x16, .f32⟩ : BufTy).Contents (Elt F)),
    unary main_v9108 main_v9112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9111 main_v9113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9112 main_v9113 main_v9114 (mulf : (⟨S4x256x16, .f32⟩ : BufTy).Contents (Elt F) → (⟨S4x256x16, .f32⟩ : BufTy).Contents (Elt F) → (⟨S4x256x16, .f32⟩ : BufTy).Contents (Elt F)),
    binary main_v9105 main_v9114 main_v9115 (addf : (⟨S4x256x16, .f32⟩ : BufTy).Contents (Elt F) → (⟨S4x256x16, .f32⟩ : BufTy).Contents (Elt F) → (⟨S4x256x16, .f32⟩ : BufTy).Contents (Elt F)),
    unary main_arg3 main_v9116 ((extractStridedSlice S4x1x16 ![0, 455, 0] · slices_S4x512x16_S4x1x16_0_455_0) : (⟨S4x512x16, .f32⟩ : BufTy).Contents (Elt F) → (⟨S4x1x16, .f32⟩ : BufTy).Contents (Elt F)),
    reshape main_v9116 main_v9117 rfl shapeCasts_S4x1x16_S4x16,
    unary main_v9117 main_v9118 (broadcastInDim S4x1x16 ![0, 2] bcast_S4x16_S4x1x16_0_2 : (⟨S4x16, .f32⟩ : BufTy).Contents (Elt F) → (⟨S4x1x16, .f32⟩ : BufTy).Contents (Elt F)),
    unary main_v9118 main_v9119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9115 main_v9119 main_v9120 (mulf : (⟨S4x256x16, .f32⟩ : BufTy).Contents (Elt F) → (⟨S4x256x16, .f32⟩ : BufTy).Contents (Elt F) → (⟨S4x256x16, .f32⟩ : BufTy).Contents (Elt F)),
    nullary main_cst_910 (constant S_ .f32 0x00000000#32),
    binary main_v9120 main_cst_910 main_v9121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_911 (constantI S_ 32 455#32),
    unary main_c_911 main_v9122 (broadcastInDim S1 ![] bcast_S_S1 : (⟨S_, .i32⟩ : BufTy).Contents (Elt F) → (⟨S1, .i32⟩ : BufTy).Contents (Elt F)),
    ternary main_v9103 main_v9122 main_v9121 main_v9123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps455_ok : (stepOps455 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step455_val (V : Valuation τ sig (Elt Ideal)) :
    after (stepOps455 (F := Ideal)) V (no_index (Proc.devRef .tc main_v9115)) = stepH 455 (by decide) (V (Proc.devRef .tc main_arg0)) (V (Proc.devRef .tc main_v3)) (V (Proc.devRef .tc main_arg2)) (V (Proc.devRef .tc main_v9095))
    ∧ after (stepOps455 (F := Ideal)) V (no_index (Proc.devRef .tc main_v9123)) = stepY 455 (by decide) (V (Proc.devRef .tc main_arg3)) (stepH 455 (by decide) (V (Proc.devRef .tc main_arg0)) (V (Proc.devRef .tc main_v3)) (V (Proc.devRef .tc main_arg2)) (V (Proc.devRef .tc main_v9095))) (V (Proc.devRef .tc main_v9103)) := by
  simp only [stepOps455]
  after_results_simp
  first | exact ⟨rfl, rfl⟩ | fail "value"
/-- Step 456 of the loop: operations 10039 … 10060 of the program. -/
abbrev stepOps456 : List (HloOp τ sig (Elt F)) :=
  [ unary main_v3 main_v9124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9115 main_v9124 main_v9125 (mulf : (⟨S4x256x16, .f32⟩ : BufTy).Contents (Elt F) → (⟨S4x256x16, .f32⟩ : BufTy).Contents (Elt F) → (⟨S4x256x16, .f32⟩ : BufTy).Contents (Elt F)),
    unary main_arg0 main_v9126 ((extractStridedSlice S4x1x256 ![0, 456, 0] · slices_S4x512x256_S4x1x256_0_456_0) : (⟨S4x512x256, .f32⟩ : BufTy).Contents (Elt F) → (⟨S4x1x256, .f32⟩ : BufTy).Contents (Elt F)),
    reshape main_v9126 main_v9127 rfl shapeCasts_S4x1x256_S4x256,
    unary main_v9127 main_v9128 (broadcastInDim S4x256x1 ![0, 1] bcast_S4x256_S4x256x1_0_1 : (⟨S4x256, .f32⟩ : BufTy).Contents (Elt F) → (⟨S4x256x1, .f32⟩ : BufTy).Contents (Elt F)),
    unary main_arg2 main_v9129 ((extractStridedSlice S4x1x16 ![0, 456, 0] · slices_S4x512x16_S4x1x16_0_456_0) : (⟨S4x512x16, .f32⟩ : BufTy).Contents (Elt F) → (⟨S4x1x16, .f32⟩ : BufTy).Contents (Elt F)),
    reshape main_v9129 main_v9130 rfl shapeCasts_S4x1x16_S4x16,
    unary main_v9130 main_v9131 (broadcastInDim S4x1x16 ![0, 2] bcast_S4x16_S4x1x16_0_2 : (⟨S4x16, .f32⟩ : BufTy).Contents (Elt F) → (⟨S4x1x16, .f32⟩ : BufTy).Contents (Elt F)),
    unary main_v9128 main_v9132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9131 main_v9133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9132 main_v9133 main_v9134 (mulf : (⟨S4x256x16, .f32⟩ : BufTy).Contents (Elt F) → (⟨S4x256x16, .f32⟩ : BufTy).Contents (Elt F) → (⟨S4x256x16, .f32⟩ : BufTy).Contents (Elt F)),
    binary main_v9125 main_v9134 main_v9135 (addf : (⟨S4x256x16, .f32⟩ : BufTy).Contents (Elt F) → (⟨S4x256x16, .f32⟩ : BufTy).Contents (Elt F) → (⟨S4x256x16, .f32⟩ : BufTy).Contents (Elt F)),
    unary main_arg3 main_v9136 ((extractStridedSlice S4x1x16 ![0, 456, 0] · slices_S4x512x16_S4x1x16_0_456_0) : (⟨S4x512x16, .f32⟩ : BufTy).Contents (Elt F) → (⟨S4x1x16, .f32⟩ : BufTy).Contents (Elt F)),
    reshape main_v9136 main_v9137 rfl shapeCasts_S4x1x16_S4x16,
    unary main_v9137 main_v9138 (broadcastInDim S4x1x16 ![0, 2] bcast_S4x16_S4x1x16_0_2 : (⟨S4x16, .f32⟩ : BufTy).Contents (Elt F) → (⟨S4x1x16, .f32⟩ : BufTy).Contents (Elt F)),
    unary main_v9138 main_v9139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9135 main_v9139 main_v9140 (mulf : (⟨S4x256x16, .f32⟩ : BufTy).Contents (Elt F) → (⟨S4x256x16, .f32⟩ : BufTy).Contents (Elt F) → (⟨S4x256x16, .f32⟩ : BufTy).Contents (Elt F)),
    nullary main_cst_912 (constant S_ .f32 0x00000000#32),
    binary main_v9140 main_cst_912 main_v9141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_913 (constantI S_ 32 456#32),
    unary main_c_913 main_v9142 (broadcastInDim S1 ![] bcast_S_S1 : (⟨S_, .i32⟩ : BufTy).Contents (Elt F) → (⟨S1, .i32⟩ : BufTy).Contents (Elt F)),
    ternary main_v9123 main_v9142 main_v9141 main_v9143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps456_ok : (stepOps456 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step456_val (V : Valuation τ sig (Elt Ideal)) :
    after (stepOps456 (F := Ideal)) V (no_index (Proc.devRef .tc main_v9135)) = stepH 456 (by decide) (V (Proc.devRef .tc main_arg0)) (V (Proc.devRef .tc main_v3)) (V (Proc.devRef .tc main_arg2)) (V (Proc.devRef .tc main_v9115))
    ∧ after (stepOps456 (F := Ideal)) V (no_index (Proc.devRef .tc main_v9143)) = stepY 456 (by decide) (V (Proc.devRef .tc main_arg3)) (stepH 456 (by decide) (V (Proc.devRef .tc main_arg0)) (V (Proc.devRef .tc main_v3)) (V (Proc.devRef .tc main_arg2)) (V (Proc.devRef .tc main_v9115))) (V (Proc.devRef .tc main_v9123)) := by
  simp only [stepOps456]
  after_results_simp
  first | exact ⟨rfl, rfl⟩ | fail "value"
/-- Step 457 of the loop: operations 10061 … 10082 of the program. -/
abbrev stepOps457 : List (HloOp τ sig (Elt F)) :=
  [ unary main_v3 main_v9144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9135 main_v9144 main_v9145 (mulf : (⟨S4x256x16, .f32⟩ : BufTy).Contents (Elt F) → (⟨S4x256x16, .f32⟩ : BufTy).Contents (Elt F) → (⟨S4x256x16, .f32⟩ : BufTy).Contents (Elt F)),
    unary main_arg0 main_v9146 ((extractStridedSlice S4x1x256 ![0, 457, 0] · slices_S4x512x256_S4x1x256_0_457_0) : (⟨S4x512x256, .f32⟩ : BufTy).Contents (Elt F) → (⟨S4x1x256, .f32⟩ : BufTy).Contents (Elt F)),
    reshape main_v9146 main_v9147 rfl shapeCasts_S4x1x256_S4x256,
    unary main_v9147 main_v9148 (broadcastInDim S4x256x1 ![0, 1] bcast_S4x256_S4x256x1_0_1 : (⟨S4x256, .f32⟩ : BufTy).Contents (Elt F) → (⟨S4x256x1, .f32⟩ : BufTy).Contents (Elt F)),
    unary main_arg2 main_v9149 ((extractStridedSlice S4x1x16 ![0, 457, 0] · slices_S4x512x16_S4x1x16_0_457_0) : (⟨S4x512x16, .f32⟩ : BufTy).Contents (Elt F) → (⟨S4x1x16, .f32⟩ : BufTy).Contents (Elt F)),
    reshape main_v9149 main_v9150 rfl shapeCasts_S4x1x16_S4x16,
    unary main_v9150 main_v9151 (broadcastInDim S4x1x16 ![0, 2] bcast_S4x16_S4x1x16_0_2 : (⟨S4x16, .f32⟩ : BufTy).Contents (Elt F) → (⟨S4x1x16, .f32⟩ : BufTy).Contents (Elt F)),
    unary main_v9148 main_v9152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9151 main_v9153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9152 main_v9153 main_v9154 (mulf : (⟨S4x256x16, .f32⟩ : BufTy).Contents (Elt F) → (⟨S4x256x16, .f32⟩ : BufTy).Contents (Elt F) → (⟨S4x256x16, .f32⟩ : BufTy).Contents (Elt F)),
    binary main_v9145 main_v9154 main_v9155 (addf : (⟨S4x256x16, .f32⟩ : BufTy).Contents (Elt F) → (⟨S4x256x16, .f32⟩ : BufTy).Contents (Elt F) → (⟨S4x256x16, .f32⟩ : BufTy).Contents (Elt F)),
    unary main_arg3 main_v9156 ((extractStridedSlice S4x1x16 ![0, 457, 0] · slices_S4x512x16_S4x1x16_0_457_0) : (⟨S4x512x16, .f32⟩ : BufTy).Contents (Elt F) → (⟨S4x1x16, .f32⟩ : BufTy).Contents (Elt F)),
    reshape main_v9156 main_v9157 rfl shapeCasts_S4x1x16_S4x16,
    unary main_v9157 main_v9158 (broadcastInDim S4x1x16 ![0, 2] bcast_S4x16_S4x1x16_0_2 : (⟨S4x16, .f32⟩ : BufTy).Contents (Elt F) → (⟨S4x1x16, .f32⟩ : BufTy).Contents (Elt F)),
    unary main_v9158 main_v9159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9155 main_v9159 main_v9160 (mulf : (⟨S4x256x16, .f32⟩ : BufTy).Contents (Elt F) → (⟨S4x256x16, .f32⟩ : BufTy).Contents (Elt F) → (⟨S4x256x16, .f32⟩ : BufTy).Contents (Elt F)),
    nullary main_cst_914 (constant S_ .f32 0x00000000#32),
    binary main_v9160 main_cst_914 main_v9161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_915 (constantI S_ 32 457#32),
    unary main_c_915 main_v9162 (broadcastInDim S1 ![] bcast_S_S1 : (⟨S_, .i32⟩ : BufTy).Contents (Elt F) → (⟨S1, .i32⟩ : BufTy).Contents (Elt F)),
    ternary main_v9143 main_v9162 main_v9161 main_v9163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps457_ok : (stepOps457 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step457_val (V : Valuation τ sig (Elt Ideal)) :
    after (stepOps457 (F := Ideal)) V (no_index (Proc.devRef .tc main_v9155)) = stepH 457 (by decide) (V (Proc.devRef .tc main_arg0)) (V (Proc.devRef .tc main_v3)) (V (Proc.devRef .tc main_arg2)) (V (Proc.devRef .tc main_v9135))
    ∧ after (stepOps457 (F := Ideal)) V (no_index (Proc.devRef .tc main_v9163)) = stepY 457 (by decide) (V (Proc.devRef .tc main_arg3)) (stepH 457 (by decide) (V (Proc.devRef .tc main_arg0)) (V (Proc.devRef .tc main_v3)) (V (Proc.devRef .tc main_arg2)) (V (Proc.devRef .tc main_v9135))) (V (Proc.devRef .tc main_v9143)) := by
  simp only [stepOps457]
  after_results_simp
  first | exact ⟨rfl, rfl⟩ | fail "value"
/-- Step 458 of the loop: operations 10083 … 10104 of the program. -/
abbrev stepOps458 : List (HloOp τ sig (Elt F)) :=
  [ unary main_v3 main_v9164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9155 main_v9164 main_v9165 (mulf : (⟨S4x256x16, .f32⟩ : BufTy).Contents (Elt F) → (⟨S4x256x16, .f32⟩ : BufTy).Contents (Elt F) → (⟨S4x256x16, .f32⟩ : BufTy).Contents (Elt F)),
    unary main_arg0 main_v9166 ((extractStridedSlice S4x1x256 ![0, 458, 0] · slices_S4x512x256_S4x1x256_0_458_0) : (⟨S4x512x256, .f32⟩ : BufTy).Contents (Elt F) → (⟨S4x1x256, .f32⟩ : BufTy).Contents (Elt F)),
    reshape main_v9166 main_v9167 rfl shapeCasts_S4x1x256_S4x256,
    unary main_v9167 main_v9168 (broadcastInDim S4x256x1 ![0, 1] bcast_S4x256_S4x256x1_0_1 : (⟨S4x256, .f32⟩ : BufTy).Contents (Elt F) → (⟨S4x256x1, .f32⟩ : BufTy).Contents (Elt F)),
    unary main_arg2 main_v9169 ((extractStridedSlice S4x1x16 ![0, 458, 0] · slices_S4x512x16_S4x1x16_0_458_0) : (⟨S4x512x16, .f32⟩ : BufTy).Contents (Elt F) → (⟨S4x1x16, .f32⟩ : BufTy).Contents (Elt F)),
    reshape main_v9169 main_v9170 rfl shapeCasts_S4x1x16_S4x16,
    unary main_v9170 main_v9171 (broadcastInDim S4x1x16 ![0, 2] bcast_S4x16_S4x1x16_0_2 : (⟨S4x16, .f32⟩ : BufTy).Contents (Elt F) → (⟨S4x1x16, .f32⟩ : BufTy).Contents (Elt F)),
    unary main_v9168 main_v9172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9171 main_v9173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9172 main_v9173 main_v9174 (mulf : (⟨S4x256x16, .f32⟩ : BufTy).Contents (Elt F) → (⟨S4x256x16, .f32⟩ : BufTy).Contents (Elt F) → (⟨S4x256x16, .f32⟩ : BufTy).Contents (Elt F)),
    binary main_v9165 main_v9174 main_v9175 (addf : (⟨S4x256x16, .f32⟩ : BufTy).Contents (Elt F) → (⟨S4x256x16, .f32⟩ : BufTy).Contents (Elt F) → (⟨S4x256x16, .f32⟩ : BufTy).Contents (Elt F)),
    unary main_arg3 main_v9176 ((extractStridedSlice S4x1x16 ![0, 458, 0] · slices_S4x512x16_S4x1x16_0_458_0) : (⟨S4x512x16, .f32⟩ : BufTy).Contents (Elt F) → (⟨S4x1x16, .f32⟩ : BufTy).Contents (Elt F)),
    reshape main_v9176 main_v9177 rfl shapeCasts_S4x1x16_S4x16,
    unary main_v9177 main_v9178 (broadcastInDim S4x1x16 ![0, 2] bcast_S4x16_S4x1x16_0_2 : (⟨S4x16, .f32⟩ : BufTy).Contents (Elt F) → (⟨S4x1x16, .f32⟩ : BufTy).Contents (Elt F)),
    unary main_v9178 main_v9179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9175 main_v9179 main_v9180 (mulf : (⟨S4x256x16, .f32⟩ : BufTy).Contents (Elt F) → (⟨S4x256x16, .f32⟩ : BufTy).Contents (Elt F) → (⟨S4x256x16, .f32⟩ : BufTy).Contents (Elt F)),
    nullary main_cst_916 (constant S_ .f32 0x00000000#32),
    binary main_v9180 main_cst_916 main_v9181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_917 (constantI S_ 32 458#32),
    unary main_c_917 main_v9182 (broadcastInDim S1 ![] bcast_S_S1 : (⟨S_, .i32⟩ : BufTy).Contents (Elt F) → (⟨S1, .i32⟩ : BufTy).Contents (Elt F)),
    ternary main_v9163 main_v9182 main_v9181 main_v9183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps458_ok : (stepOps458 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step458_val (V : Valuation τ sig (Elt Ideal)) :
    after (stepOps458 (F := Ideal)) V (no_index (Proc.devRef .tc main_v9175)) = stepH 458 (by decide) (V (Proc.devRef .tc main_arg0)) (V (Proc.devRef .tc main_v3)) (V (Proc.devRef .tc main_arg2)) (V (Proc.devRef .tc main_v9155))
    ∧ after (stepOps458 (F := Ideal)) V (no_index (Proc.devRef .tc main_v9183)) = stepY 458 (by decide) (V (Proc.devRef .tc main_arg3)) (stepH 458 (by decide) (V (Proc.devRef .tc main_arg0)) (V (Proc.devRef .tc main_v3)) (V (Proc.devRef .tc main_arg2)) (V (Proc.devRef .tc main_v9155))) (V (Proc.devRef .tc main_v9163)) := by
  simp only [stepOps458]
  after_results_simp
  first | exact ⟨rfl, rfl⟩ | fail "value"
/-- Step 459 of the loop: operations 10105 … 10126 of the program. -/
abbrev stepOps459 : List (HloOp τ sig (Elt F)) :=
  [ unary main_v3 main_v9184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9175 main_v9184 main_v9185 (mulf : (⟨S4x256x16, .f32⟩ : BufTy).Contents (Elt F) → (⟨S4x256x16, .f32⟩ : BufTy).Contents (Elt F) → (⟨S4x256x16, .f32⟩ : BufTy).Contents (Elt F)),
    unary main_arg0 main_v9186 ((extractStridedSlice S4x1x256 ![0, 459, 0] · slices_S4x512x256_S4x1x256_0_459_0) : (⟨S4x512x256, .f32⟩ : BufTy).Contents (Elt F) → (⟨S4x1x256, .f32⟩ : BufTy).Contents (Elt F)),
    reshape main_v9186 main_v9187 rfl shapeCasts_S4x1x256_S4x256,
    unary main_v9187 main_v9188 (broadcastInDim S4x256x1 ![0, 1] bcast_S4x256_S4x256x1_0_1 : (⟨S4x256, .f32⟩ : BufTy).Contents (Elt F) → (⟨S4x256x1, .f32⟩ : BufTy).Contents (Elt F)),
    unary main_arg2 main_v9189 ((extractStridedSlice S4x1x16 ![0, 459, 0] · slices_S4x512x16_S4x1x16_0_459_0) : (⟨S4x512x16, .f32⟩ : BufTy).Contents (Elt F) → (⟨S4x1x16, .f32⟩ : BufTy).Contents (Elt F)),
    reshape main_v9189 main_v9190 rfl shapeCasts_S4x1x16_S4x16,
    unary main_v9190 main_v9191 (broadcastInDim S4x1x16 ![0, 2] bcast_S4x16_S4x1x16_0_2 : (⟨S4x16, .f32⟩ : BufTy).Contents (Elt F) → (⟨S4x1x16, .f32⟩ : BufTy).Contents (Elt F)),
    unary main_v9188 main_v9192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9191 main_v9193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9192 main_v9193 main_v9194 (mulf : (⟨S4x256x16, .f32⟩ : BufTy).Contents (Elt F) → (⟨S4x256x16, .f32⟩ : BufTy).Contents (Elt F) → (⟨S4x256x16, .f32⟩ : BufTy).Contents (Elt F)),
    binary main_v9185 main_v9194 main_v9195 (addf : (⟨S4x256x16, .f32⟩ : BufTy).Contents (Elt F) → (⟨S4x256x16, .f32⟩ : BufTy).Contents (Elt F) → (⟨S4x256x16, .f32⟩ : BufTy).Contents (Elt F)),
    unary main_arg3 main_v9196 ((extractStridedSlice S4x1x16 ![0, 459, 0] · slices_S4x512x16_S4x1x16_0_459_0) : (⟨S4x512x16, .f32⟩ : BufTy).Contents (Elt F) → (⟨S4x1x16, .f32⟩ : BufTy).Contents (Elt F)),
    reshape main_v9196 main_v9197 rfl shapeCasts_S4x1x16_S4x16,
    unary main_v9197 main_v9198 (broadcastInDim S4x1x16 ![0, 2] bcast_S4x16_S4x1x16_0_2 : (⟨S4x16, .f32⟩ : BufTy).Contents (Elt F) → (⟨S4x1x16, .f32⟩ : BufTy).Contents (Elt F)),
    unary main_v9198 main_v9199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9195 main_v9199 main_v9200 (mulf : (⟨S4x256x16, .f32⟩ : BufTy).Contents (Elt F) → (⟨S4x256x16, .f32⟩ : BufTy).Contents (Elt F) → (⟨S4x256x16, .f32⟩ : BufTy).Contents (Elt F)),
    nullary main_cst_918 (constant S_ .f32 0x00000000#32),
    binary main_v9200 main_cst_918 main_v9201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_919 (constantI S_ 32 459#32),
    unary main_c_919 main_v9202 (broadcastInDim S1 ![] bcast_S_S1 : (⟨S_, .i32⟩ : BufTy).Contents (Elt F) → (⟨S1, .i32⟩ : BufTy).Contents (Elt F)),
    ternary main_v9183 main_v9202 main_v9201 main_v9203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps459_ok : (stepOps459 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step459_val (V : Valuation τ sig (Elt Ideal)) :
    after (stepOps459 (F := Ideal)) V (no_index (Proc.devRef .tc main_v9195)) = stepH 459 (by decide) (V (Proc.devRef .tc main_arg0)) (V (Proc.devRef .tc main_v3)) (V (Proc.devRef .tc main_arg2)) (V (Proc.devRef .tc main_v9175))
    ∧ after (stepOps459 (F := Ideal)) V (no_index (Proc.devRef .tc main_v9203)) = stepY 459 (by decide) (V (Proc.devRef .tc main_arg3)) (stepH 459 (by decide) (V (Proc.devRef .tc main_arg0)) (V (Proc.devRef .tc main_v3)) (V (Proc.devRef .tc main_arg2)) (V (Proc.devRef .tc main_v9175))) (V (Proc.devRef .tc main_v9183)) := by
  simp only [stepOps459]
  after_results_simp
  first | exact ⟨rfl, rfl⟩ | fail "value"
/-- Step 460 of the loop: operations 10127 … 10148 of the program. -/
abbrev stepOps460 : List (HloOp τ sig (Elt F)) :=
  [ unary main_v3 main_v9204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9195 main_v9204 main_v9205 (mulf : (⟨S4x256x16, .f32⟩ : BufTy).Contents (Elt F) → (⟨S4x256x16, .f32⟩ : BufTy).Contents (Elt F) → (⟨S4x256x16, .f32⟩ : BufTy).Contents (Elt F)),
    unary main_arg0 main_v9206 ((extractStridedSlice S4x1x256 ![0, 460, 0] · slices_S4x512x256_S4x1x256_0_460_0) : (⟨S4x512x256, .f32⟩ : BufTy).Contents (Elt F) → (⟨S4x1x256, .f32⟩ : BufTy).Contents (Elt F)),
    reshape main_v9206 main_v9207 rfl shapeCasts_S4x1x256_S4x256,
    unary main_v9207 main_v9208 (broadcastInDim S4x256x1 ![0, 1] bcast_S4x256_S4x256x1_0_1 : (⟨S4x256, .f32⟩ : BufTy).Contents (Elt F) → (⟨S4x256x1, .f32⟩ : BufTy).Contents (Elt F)),
    unary main_arg2 main_v9209 ((extractStridedSlice S4x1x16 ![0, 460, 0] · slices_S4x512x16_S4x1x16_0_460_0) : (⟨S4x512x16, .f32⟩ : BufTy).Contents (Elt F) → (⟨S4x1x16, .f32⟩ : BufTy).Contents (Elt F)),
    reshape main_v9209 main_v9210 rfl shapeCasts_S4x1x16_S4x16,
    unary main_v9210 main_v9211 (broadcastInDim S4x1x16 ![0, 2] bcast_S4x16_S4x1x16_0_2 : (⟨S4x16, .f32⟩ : BufTy).Contents (Elt F) → (⟨S4x1x16, .f32⟩ : BufTy).Contents (Elt F)),
    unary main_v9208 main_v9212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9211 main_v9213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9212 main_v9213 main_v9214 (mulf : (⟨S4x256x16, .f32⟩ : BufTy).Contents (Elt F) → (⟨S4x256x16, .f32⟩ : BufTy).Contents (Elt F) → (⟨S4x256x16, .f32⟩ : BufTy).Contents (Elt F)),
    binary main_v9205 main_v9214 main_v9215 (addf : (⟨S4x256x16, .f32⟩ : BufTy).Contents (Elt F) → (⟨S4x256x16, .f32⟩ : BufTy).Contents (Elt F) → (⟨S4x256x16, .f32⟩ : BufTy).Contents (Elt F)),
    unary main_arg3 main_v9216 ((extractStridedSlice S4x1x16 ![0, 460, 0] · slices_S4x512x16_S4x1x16_0_460_0) : (⟨S4x512x16, .f32⟩ : BufTy).Contents (Elt F) → (⟨S4x1x16, .f32⟩ : BufTy).Contents (Elt F)),
    reshape main_v9216 main_v9217 rfl shapeCasts_S4x1x16_S4x16,
    unary main_v9217 main_v9218 (broadcastInDim S4x1x16 ![0, 2] bcast_S4x16_S4x1x16_0_2 : (⟨S4x16, .f32⟩ : BufTy).Contents (Elt F) → (⟨S4x1x16, .f32⟩ : BufTy).Contents (Elt F)),
    unary main_v9218 main_v9219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9215 main_v9219 main_v9220 (mulf : (⟨S4x256x16, .f32⟩ : BufTy).Contents (Elt F) → (⟨S4x256x16, .f32⟩ : BufTy).Contents (Elt F) → (⟨S4x256x16, .f32⟩ : BufTy).Contents (Elt F)),
    nullary main_cst_920 (constant S_ .f32 0x00000000#32),
    binary main_v9220 main_cst_920 main_v9221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_921 (constantI S_ 32 460#32),
    unary main_c_921 main_v9222 (broadcastInDim S1 ![] bcast_S_S1 : (⟨S_, .i32⟩ : BufTy).Contents (Elt F) → (⟨S1, .i32⟩ : BufTy).Contents (Elt F)),
    ternary main_v9203 main_v9222 main_v9221 main_v9223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps460_ok : (stepOps460 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step460_val (V : Valuation τ sig (Elt Ideal)) :
    after (stepOps460 (F := Ideal)) V (no_index (Proc.devRef .tc main_v9215)) = stepH 460 (by decide) (V (Proc.devRef .tc main_arg0)) (V (Proc.devRef .tc main_v3)) (V (Proc.devRef .tc main_arg2)) (V (Proc.devRef .tc main_v9195))
    ∧ after (stepOps460 (F := Ideal)) V (no_index (Proc.devRef .tc main_v9223)) = stepY 460 (by decide) (V (Proc.devRef .tc main_arg3)) (stepH 460 (by decide) (V (Proc.devRef .tc main_arg0)) (V (Proc.devRef .tc main_v3)) (V (Proc.devRef .tc main_arg2)) (V (Proc.devRef .tc main_v9195))) (V (Proc.devRef .tc main_v9203)) := by
  simp only [stepOps460]
  after_results_simp
  first | exact ⟨rfl, rfl⟩ | fail "value"
/-- Step 461 of the loop: operations 10149 … 10170 of the program. -/
abbrev stepOps461 : List (HloOp τ sig (Elt F)) :=
  [ unary main_v3 main_v9224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9215 main_v9224 main_v9225 (mulf : (⟨S4x256x16, .f32⟩ : BufTy).Contents (Elt F) → (⟨S4x256x16, .f32⟩ : BufTy).Contents (Elt F) → (⟨S4x256x16, .f32⟩ : BufTy).Contents (Elt F)),
    unary main_arg0 main_v9226 ((extractStridedSlice S4x1x256 ![0, 461, 0] · slices_S4x512x256_S4x1x256_0_461_0) : (⟨S4x512x256, .f32⟩ : BufTy).Contents (Elt F) → (⟨S4x1x256, .f32⟩ : BufTy).Contents (Elt F)),
    reshape main_v9226 main_v9227 rfl shapeCasts_S4x1x256_S4x256,
    unary main_v9227 main_v9228 (broadcastInDim S4x256x1 ![0, 1] bcast_S4x256_S4x256x1_0_1 : (⟨S4x256, .f32⟩ : BufTy).Contents (Elt F) → (⟨S4x256x1, .f32⟩ : BufTy).Contents (Elt F)),
    unary main_arg2 main_v9229 ((extractStridedSlice S4x1x16 ![0, 461, 0] · slices_S4x512x16_S4x1x16_0_461_0) : (⟨S4x512x16, .f32⟩ : BufTy).Contents (Elt F) → (⟨S4x1x16, .f32⟩ : BufTy).Contents (Elt F)),
    reshape main_v9229 main_v9230 rfl shapeCasts_S4x1x16_S4x16,
    unary main_v9230 main_v9231 (broadcastInDim S4x1x16 ![0, 2] bcast_S4x16_S4x1x16_0_2 : (⟨S4x16, .f32⟩ : BufTy).Contents (Elt F) → (⟨S4x1x16, .f32⟩ : BufTy).Contents (Elt F)),
    unary main_v9228 main_v9232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9231 main_v9233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9232 main_v9233 main_v9234 (mulf : (⟨S4x256x16, .f32⟩ : BufTy).Contents (Elt F) → (⟨S4x256x16, .f32⟩ : BufTy).Contents (Elt F) → (⟨S4x256x16, .f32⟩ : BufTy).Contents (Elt F)),
    binary main_v9225 main_v9234 main_v9235 (addf : (⟨S4x256x16, .f32⟩ : BufTy).Contents (Elt F) → (⟨S4x256x16, .f32⟩ : BufTy).Contents (Elt F) → (⟨S4x256x16, .f32⟩ : BufTy).Contents (Elt F)),
    unary main_arg3 main_v9236 ((extractStridedSlice S4x1x16 ![0, 461, 0] · slices_S4x512x16_S4x1x16_0_461_0) : (⟨S4x512x16, .f32⟩ : BufTy).Contents (Elt F) → (⟨S4x1x16, .f32⟩ : BufTy).Contents (Elt F)),
    reshape main_v9236 main_v9237 rfl shapeCasts_S4x1x16_S4x16,
    unary main_v9237 main_v9238 (broadcastInDim S4x1x16 ![0, 2] bcast_S4x16_S4x1x16_0_2 : (⟨S4x16, .f32⟩ : BufTy).Contents (Elt F) → (⟨S4x1x16, .f32⟩ : BufTy).Contents (Elt F)),
    unary main_v9238 main_v9239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9235 main_v9239 main_v9240 (mulf : (⟨S4x256x16, .f32⟩ : BufTy).Contents (Elt F) → (⟨S4x256x16, .f32⟩ : BufTy).Contents (Elt F) → (⟨S4x256x16, .f32⟩ : BufTy).Contents (Elt F)),
    nullary main_cst_922 (constant S_ .f32 0x00000000#32),
    binary main_v9240 main_cst_922 main_v9241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_923 (constantI S_ 32 461#32),
    unary main_c_923 main_v9242 (broadcastInDim S1 ![] bcast_S_S1 : (⟨S_, .i32⟩ : BufTy).Contents (Elt F) → (⟨S1, .i32⟩ : BufTy).Contents (Elt F)),
    ternary main_v9223 main_v9242 main_v9241 main_v9243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps461_ok : (stepOps461 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step461_val (V : Valuation τ sig (Elt Ideal)) :
    after (stepOps461 (F := Ideal)) V (no_index (Proc.devRef .tc main_v9235)) = stepH 461 (by decide) (V (Proc.devRef .tc main_arg0)) (V (Proc.devRef .tc main_v3)) (V (Proc.devRef .tc main_arg2)) (V (Proc.devRef .tc main_v9215))
    ∧ after (stepOps461 (F := Ideal)) V (no_index (Proc.devRef .tc main_v9243)) = stepY 461 (by decide) (V (Proc.devRef .tc main_arg3)) (stepH 461 (by decide) (V (Proc.devRef .tc main_arg0)) (V (Proc.devRef .tc main_v3)) (V (Proc.devRef .tc main_arg2)) (V (Proc.devRef .tc main_v9215))) (V (Proc.devRef .tc main_v9223)) := by
  simp only [stepOps461]
  after_results_simp
  first | exact ⟨rfl, rfl⟩ | fail "value"
/-- Step 462 of the loop: operations 10171 … 10192 of the program. -/
abbrev stepOps462 : List (HloOp τ sig (Elt F)) :=
  [ unary main_v3 main_v9244 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9235 main_v9244 main_v9245 (mulf : (⟨S4x256x16, .f32⟩ : BufTy).Contents (Elt F) → (⟨S4x256x16, .f32⟩ : BufTy).Contents (Elt F) → (⟨S4x256x16, .f32⟩ : BufTy).Contents (Elt F)),
    unary main_arg0 main_v9246 ((extractStridedSlice S4x1x256 ![0, 462, 0] · slices_S4x512x256_S4x1x256_0_462_0) : (⟨S4x512x256, .f32⟩ : BufTy).Contents (Elt F) → (⟨S4x1x256, .f32⟩ : BufTy).Contents (Elt F)),
    reshape main_v9246 main_v9247 rfl shapeCasts_S4x1x256_S4x256,
    unary main_v9247 main_v9248 (broadcastInDim S4x256x1 ![0, 1] bcast_S4x256_S4x256x1_0_1 : (⟨S4x256, .f32⟩ : BufTy).Contents (Elt F) → (⟨S4x256x1, .f32⟩ : BufTy).Contents (Elt F)),
    unary main_arg2 main_v9249 ((extractStridedSlice S4x1x16 ![0, 462, 0] · slices_S4x512x16_S4x1x16_0_462_0) : (⟨S4x512x16, .f32⟩ : BufTy).Contents (Elt F) → (⟨S4x1x16, .f32⟩ : BufTy).Contents (Elt F)),
    reshape main_v9249 main_v9250 rfl shapeCasts_S4x1x16_S4x16,
    unary main_v9250 main_v9251 (broadcastInDim S4x1x16 ![0, 2] bcast_S4x16_S4x1x16_0_2 : (⟨S4x16, .f32⟩ : BufTy).Contents (Elt F) → (⟨S4x1x16, .f32⟩ : BufTy).Contents (Elt F)),
    unary main_v9248 main_v9252 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9251 main_v9253 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9252 main_v9253 main_v9254 (mulf : (⟨S4x256x16, .f32⟩ : BufTy).Contents (Elt F) → (⟨S4x256x16, .f32⟩ : BufTy).Contents (Elt F) → (⟨S4x256x16, .f32⟩ : BufTy).Contents (Elt F)),
    binary main_v9245 main_v9254 main_v9255 (addf : (⟨S4x256x16, .f32⟩ : BufTy).Contents (Elt F) → (⟨S4x256x16, .f32⟩ : BufTy).Contents (Elt F) → (⟨S4x256x16, .f32⟩ : BufTy).Contents (Elt F)),
    unary main_arg3 main_v9256 ((extractStridedSlice S4x1x16 ![0, 462, 0] · slices_S4x512x16_S4x1x16_0_462_0) : (⟨S4x512x16, .f32⟩ : BufTy).Contents (Elt F) → (⟨S4x1x16, .f32⟩ : BufTy).Contents (Elt F)),
    reshape main_v9256 main_v9257 rfl shapeCasts_S4x1x16_S4x16,
    unary main_v9257 main_v9258 (broadcastInDim S4x1x16 ![0, 2] bcast_S4x16_S4x1x16_0_2 : (⟨S4x16, .f32⟩ : BufTy).Contents (Elt F) → (⟨S4x1x16, .f32⟩ : BufTy).Contents (Elt F)),
    unary main_v9258 main_v9259 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9255 main_v9259 main_v9260 (mulf : (⟨S4x256x16, .f32⟩ : BufTy).Contents (Elt F) → (⟨S4x256x16, .f32⟩ : BufTy).Contents (Elt F) → (⟨S4x256x16, .f32⟩ : BufTy).Contents (Elt F)),
    nullary main_cst_924 (constant S_ .f32 0x00000000#32),
    binary main_v9260 main_cst_924 main_v9261 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_925 (constantI S_ 32 462#32),
    unary main_c_925 main_v9262 (broadcastInDim S1 ![] bcast_S_S1 : (⟨S_, .i32⟩ : BufTy).Contents (Elt F) → (⟨S1, .i32⟩ : BufTy).Contents (Elt F)),
    ternary main_v9243 main_v9262 main_v9261 main_v9263 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps462_ok : (stepOps462 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step462_val (V : Valuation τ sig (Elt Ideal)) :
    after (stepOps462 (F := Ideal)) V (no_index (Proc.devRef .tc main_v9255)) = stepH 462 (by decide) (V (Proc.devRef .tc main_arg0)) (V (Proc.devRef .tc main_v3)) (V (Proc.devRef .tc main_arg2)) (V (Proc.devRef .tc main_v9235))
    ∧ after (stepOps462 (F := Ideal)) V (no_index (Proc.devRef .tc main_v9263)) = stepY 462 (by decide) (V (Proc.devRef .tc main_arg3)) (stepH 462 (by decide) (V (Proc.devRef .tc main_arg0)) (V (Proc.devRef .tc main_v3)) (V (Proc.devRef .tc main_arg2)) (V (Proc.devRef .tc main_v9235))) (V (Proc.devRef .tc main_v9243)) := by
  simp only [stepOps462]
  after_results_simp
  first | exact ⟨rfl, rfl⟩ | fail "value"
/-- Step 463 of the loop: operations 10193 … 10214 of the program. -/
abbrev stepOps463 : List (HloOp τ sig (Elt F)) :=
  [ unary main_v3 main_v9264 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9255 main_v9264 main_v9265 (mulf : (⟨S4x256x16, .f32⟩ : BufTy).Contents (Elt F) → (⟨S4x256x16, .f32⟩ : BufTy).Contents (Elt F) → (⟨S4x256x16, .f32⟩ : BufTy).Contents (Elt F)),
    unary main_arg0 main_v9266 ((extractStridedSlice S4x1x256 ![0, 463, 0] · slices_S4x512x256_S4x1x256_0_463_0) : (⟨S4x512x256, .f32⟩ : BufTy).Contents (Elt F) → (⟨S4x1x256, .f32⟩ : BufTy).Contents (Elt F)),
    reshape main_v9266 main_v9267 rfl shapeCasts_S4x1x256_S4x256,
    unary main_v9267 main_v9268 (broadcastInDim S4x256x1 ![0, 1] bcast_S4x256_S4x256x1_0_1 : (⟨S4x256, .f32⟩ : BufTy).Contents (Elt F) → (⟨S4x256x1, .f32⟩ : BufTy).Contents (Elt F)),
    unary main_arg2 main_v9269 ((extractStridedSlice S4x1x16 ![0, 463, 0] · slices_S4x512x16_S4x1x16_0_463_0) : (⟨S4x512x16, .f32⟩ : BufTy).Contents (Elt F) → (⟨S4x1x16, .f32⟩ : BufTy).Contents (Elt F)),
    reshape main_v9269 main_v9270 rfl shapeCasts_S4x1x16_S4x16,
    unary main_v9270 main_v9271 (broadcastInDim S4x1x16 ![0, 2] bcast_S4x16_S4x1x16_0_2 : (⟨S4x16, .f32⟩ : BufTy).Contents (Elt F) → (⟨S4x1x16, .f32⟩ : BufTy).Contents (Elt F)),
    unary main_v9268 main_v9272 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9271 main_v9273 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9272 main_v9273 main_v9274 (mulf : (⟨S4x256x16, .f32⟩ : BufTy).Contents (Elt F) → (⟨S4x256x16, .f32⟩ : BufTy).Contents (Elt F) → (⟨S4x256x16, .f32⟩ : BufTy).Contents (Elt F)),
    binary main_v9265 main_v9274 main_v9275 (addf : (⟨S4x256x16, .f32⟩ : BufTy).Contents (Elt F) → (⟨S4x256x16, .f32⟩ : BufTy).Contents (Elt F) → (⟨S4x256x16, .f32⟩ : BufTy).Contents (Elt F)),
    unary main_arg3 main_v9276 ((extractStridedSlice S4x1x16 ![0, 463, 0] · slices_S4x512x16_S4x1x16_0_463_0) : (⟨S4x512x16, .f32⟩ : BufTy).Contents (Elt F) → (⟨S4x1x16, .f32⟩ : BufTy).Contents (Elt F)),
    reshape main_v9276 main_v9277 rfl shapeCasts_S4x1x16_S4x16,
    unary main_v9277 main_v9278 (broadcastInDim S4x1x16 ![0, 2] bcast_S4x16_S4x1x16_0_2 : (⟨S4x16, .f32⟩ : BufTy).Contents (Elt F) → (⟨S4x1x16, .f32⟩ : BufTy).Contents (Elt F)),
    unary main_v9278 main_v9279 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9275 main_v9279 main_v9280 (mulf : (⟨S4x256x16, .f32⟩ : BufTy).Contents (Elt F) → (⟨S4x256x16, .f32⟩ : BufTy).Contents (Elt F) → (⟨S4x256x16, .f32⟩ : BufTy).Contents (Elt F)),
    nullary main_cst_926 (constant S_ .f32 0x00000000#32),
    binary main_v9280 main_cst_926 main_v9281 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_927 (constantI S_ 32 463#32),
    unary main_c_927 main_v9282 (broadcastInDim S1 ![] bcast_S_S1 : (⟨S_, .i32⟩ : BufTy).Contents (Elt F) → (⟨S1, .i32⟩ : BufTy).Contents (Elt F)),
    ternary main_v9263 main_v9282 main_v9281 main_v9283 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps463_ok : (stepOps463 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step463_val (V : Valuation τ sig (Elt Ideal)) :
    after (stepOps463 (F := Ideal)) V (no_index (Proc.devRef .tc main_v9275)) = stepH 463 (by decide) (V (Proc.devRef .tc main_arg0)) (V (Proc.devRef .tc main_v3)) (V (Proc.devRef .tc main_arg2)) (V (Proc.devRef .tc main_v9255))
    ∧ after (stepOps463 (F := Ideal)) V (no_index (Proc.devRef .tc main_v9283)) = stepY 463 (by decide) (V (Proc.devRef .tc main_arg3)) (stepH 463 (by decide) (V (Proc.devRef .tc main_arg0)) (V (Proc.devRef .tc main_v3)) (V (Proc.devRef .tc main_arg2)) (V (Proc.devRef .tc main_v9255))) (V (Proc.devRef .tc main_v9263)) := by
  simp only [stepOps463]
  after_results_simp
  first | exact ⟨rfl, rfl⟩ | fail "value"

end Cert.ReferenceIdeal.RefRun

end
-- ==== Proof.RefTableStep29.lean ====
/-
  Steps 464 … 479 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 464 of the loop: operations 10215 … 10236 of the program. -/
abbrev stepOps464 : List (HloOp τ sig (Elt F)) :=
  [ unary main_v3 main_v9284 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9275 main_v9284 main_v9285 (mulf : (⟨S4x256x16, .f32⟩ : BufTy).Contents (Elt F) → (⟨S4x256x16, .f32⟩ : BufTy).Contents (Elt F) → (⟨S4x256x16, .f32⟩ : BufTy).Contents (Elt F)),
    unary main_arg0 main_v9286 ((extractStridedSlice S4x1x256 ![0, 464, 0] · slices_S4x512x256_S4x1x256_0_464_0) : (⟨S4x512x256, .f32⟩ : BufTy).Contents (Elt F) → (⟨S4x1x256, .f32⟩ : BufTy).Contents (Elt F)),
    reshape main_v9286 main_v9287 rfl shapeCasts_S4x1x256_S4x256,
    unary main_v9287 main_v9288 (broadcastInDim S4x256x1 ![0, 1] bcast_S4x256_S4x256x1_0_1 : (⟨S4x256, .f32⟩ : BufTy).Contents (Elt F) → (⟨S4x256x1, .f32⟩ : BufTy).Contents (Elt F)),
    unary main_arg2 main_v9289 ((extractStridedSlice S4x1x16 ![0, 464, 0] · slices_S4x512x16_S4x1x16_0_464_0) : (⟨S4x512x16, .f32⟩ : BufTy).Contents (Elt F) → (⟨S4x1x16, .f32⟩ : BufTy).Contents (Elt F)),
    reshape main_v9289 main_v9290 rfl shapeCasts_S4x1x16_S4x16,
    unary main_v9290 main_v9291 (broadcastInDim S4x1x16 ![0, 2] bcast_S4x16_S4x1x16_0_2 : (⟨S4x16, .f32⟩ : BufTy).Contents (Elt F) → (⟨S4x1x16, .f32⟩ : BufTy).Contents (Elt F)),
    unary main_v9288 main_v9292 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9291 main_v9293 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9292 main_v9293 main_v9294 (mulf : (⟨S4x256x16, .f32⟩ : BufTy).Contents (Elt F) → (⟨S4x256x16, .f32⟩ : BufTy).Contents (Elt F) → (⟨S4x256x16, .f32⟩ : BufTy).Contents (Elt F)),
    binary main_v9285 main_v9294 main_v9295 (addf : (⟨S4x256x16, .f32⟩ : BufTy).Contents (Elt F) → (⟨S4x256x16, .f32⟩ : BufTy).Contents (Elt F) → (⟨S4x256x16, .f32⟩ : BufTy).Contents (Elt F)),
    unary main_arg3 main_v9296 ((extractStridedSlice S4x1x16 ![0, 464, 0] · slices_S4x512x16_S4x1x16_0_464_0) : (⟨S4x512x16, .f32⟩ : BufTy).Contents (Elt F) → (⟨S4x1x16, .f32⟩ : BufTy).Contents (Elt F)),
    reshape main_v9296 main_v9297 rfl shapeCasts_S4x1x16_S4x16,
    unary main_v9297 main_v9298 (broadcastInDim S4x1x16 ![0, 2] bcast_S4x16_S4x1x16_0_2 : (⟨S4x16, .f32⟩ : BufTy).Contents (Elt F) → (⟨S4x1x16, .f32⟩ : BufTy).Contents (Elt F)),
    unary main_v9298 main_v9299 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9295 main_v9299 main_v9300 (mulf : (⟨S4x256x16, .f32⟩ : BufTy).Contents (Elt F) → (⟨S4x256x16, .f32⟩ : BufTy).Contents (Elt F) → (⟨S4x256x16, .f32⟩ : BufTy).Contents (Elt F)),
    nullary main_cst_928 (constant S_ .f32 0x00000000#32),
    binary main_v9300 main_cst_928 main_v9301 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_929 (constantI S_ 32 464#32),
    unary main_c_929 main_v9302 (broadcastInDim S1 ![] bcast_S_S1 : (⟨S_, .i32⟩ : BufTy).Contents (Elt F) → (⟨S1, .i32⟩ : BufTy).Contents (Elt F)),
    ternary main_v9283 main_v9302 main_v9301 main_v9303 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps464_ok : (stepOps464 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step464_val (V : Valuation τ sig (Elt Ideal)) :
    after (stepOps464 (F := Ideal)) V (no_index (Proc.devRef .tc main_v9295)) = stepH 464 (by decide) (V (Proc.devRef .tc main_arg0)) (V (Proc.devRef .tc main_v3)) (V (Proc.devRef .tc main_arg2)) (V (Proc.devRef .tc main_v9275))
    ∧ after (stepOps464 (F := Ideal)) V (no_index (Proc.devRef .tc main_v9303)) = stepY 464 (by decide) (V (Proc.devRef .tc main_arg3)) (stepH 464 (by decide) (V (Proc.devRef .tc main_arg0)) (V (Proc.devRef .tc main_v3)) (V (Proc.devRef .tc main_arg2)) (V (Proc.devRef .tc main_v9275))) (V (Proc.devRef .tc main_v9283)) := by
  simp only [stepOps464]
  after_results_simp
  first | exact ⟨rfl, rfl⟩ | fail "value"
/-- Step 465 of the loop: operations 10237 … 10258 of the program. -/
abbrev stepOps465 : List (HloOp τ sig (Elt F)) :=
  [ unary main_v3 main_v9304 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9295 main_v9304 main_v9305 (mulf : (⟨S4x256x16, .f32⟩ : BufTy).Contents (Elt F) → (⟨S4x256x16, .f32⟩ : BufTy).Contents (Elt F) → (⟨S4x256x16, .f32⟩ : BufTy).Contents (Elt F)),
    unary main_arg0 main_v9306 ((extractStridedSlice S4x1x256 ![0, 465, 0] · slices_S4x512x256_S4x1x256_0_465_0) : (⟨S4x512x256, .f32⟩ : BufTy).Contents (Elt F) → (⟨S4x1x256, .f32⟩ : BufTy).Contents (Elt F)),
    reshape main_v9306 main_v9307 rfl shapeCasts_S4x1x256_S4x256,
    unary main_v9307 main_v9308 (broadcastInDim S4x256x1 ![0, 1] bcast_S4x256_S4x256x1_0_1 : (⟨S4x256, .f32⟩ : BufTy).Contents (Elt F) → (⟨S4x256x1, .f32⟩ : BufTy).Contents (Elt F)),
    unary main_arg2 main_v9309 ((extractStridedSlice S4x1x16 ![0, 465, 0] · slices_S4x512x16_S4x1x16_0_465_0) : (⟨S4x512x16, .f32⟩ : BufTy).Contents (Elt F) → (⟨S4x1x16, .f32⟩ : BufTy).Contents (Elt F)),
    reshape main_v9309 main_v9310 rfl shapeCasts_S4x1x16_S4x16,
    unary main_v9310 main_v9311 (broadcastInDim S4x1x16 ![0, 2] bcast_S4x16_S4x1x16_0_2 : (⟨S4x16, .f32⟩ : BufTy).Contents (Elt F) → (⟨S4x1x16, .f32⟩ : BufTy).Contents (Elt F)),
    unary main_v9308 main_v9312 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9311 main_v9313 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9312 main_v9313 main_v9314 (mulf : (⟨S4x256x16, .f32⟩ : BufTy).Contents (Elt F) → (⟨S4x256x16, .f32⟩ : BufTy).Contents (Elt F) → (⟨S4x256x16, .f32⟩ : BufTy).Contents (Elt F)),
    binary main_v9305 main_v9314 main_v9315 (addf : (⟨S4x256x16, .f32⟩ : BufTy).Contents (Elt F) → (⟨S4x256x16, .f32⟩ : BufTy).Contents (Elt F) → (⟨S4x256x16, .f32⟩ : BufTy).Contents (Elt F)),
    unary main_arg3 main_v9316 ((extractStridedSlice S4x1x16 ![0, 465, 0] · slices_S4x512x16_S4x1x16_0_465_0) : (⟨S4x512x16, .f32⟩ : BufTy).Contents (Elt F) → (⟨S4x1x16, .f32⟩ : BufTy).Contents (Elt F)),
    reshape main_v9316 main_v9317 rfl shapeCasts_S4x1x16_S4x16,
    unary main_v9317 main_v9318 (broadcastInDim S4x1x16 ![0, 2] bcast_S4x16_S4x1x16_0_2 : (⟨S4x16, .f32⟩ : BufTy).Contents (Elt F) → (⟨S4x1x16, .f32⟩ : BufTy).Contents (Elt F)),
    unary main_v9318 main_v9319 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9315 main_v9319 main_v9320 (mulf : (⟨S4x256x16, .f32⟩ : BufTy).Contents (Elt F) → (⟨S4x256x16, .f32⟩ : BufTy).Contents (Elt F) → (⟨S4x256x16, .f32⟩ : BufTy).Contents (Elt F)),
    nullary main_cst_930 (constant S_ .f32 0x00000000#32),
    binary main_v9320 main_cst_930 main_v9321 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_931 (constantI S_ 32 465#32),
    unary main_c_931 main_v9322 (broadcastInDim S1 ![] bcast_S_S1 : (⟨S_, .i32⟩ : BufTy).Contents (Elt F) → (⟨S1, .i32⟩ : BufTy).Contents (Elt F)),
    ternary main_v9303 main_v9322 main_v9321 main_v9323 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps465_ok : (stepOps465 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step465_val (V : Valuation τ sig (Elt Ideal)) :
    after (stepOps465 (F := Ideal)) V (no_index (Proc.devRef .tc main_v9315)) = stepH 465 (by decide) (V (Proc.devRef .tc main_arg0)) (V (Proc.devRef .tc main_v3)) (V (Proc.devRef .tc main_arg2)) (V (Proc.devRef .tc main_v9295))
    ∧ after (stepOps465 (F := Ideal)) V (no_index (Proc.devRef .tc main_v9323)) = stepY 465 (by decide) (V (Proc.devRef .tc main_arg3)) (stepH 465 (by decide) (V (Proc.devRef .tc main_arg0)) (V (Proc.devRef .tc main_v3)) (V (Proc.devRef .tc main_arg2)) (V (Proc.devRef .tc main_v9295))) (V (Proc.devRef .tc main_v9303)) := by
  simp only [stepOps465]
  after_results_simp
  first | exact ⟨rfl, rfl⟩ | fail "value"
/-- Step 466 of the loop: operations 10259 … 10280 of the program. -/
abbrev stepOps466 : List (HloOp τ sig (Elt F)) :=
  [ unary main_v3 main_v9324 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9315 main_v9324 main_v9325 (mulf : (⟨S4x256x16, .f32⟩ : BufTy).Contents (Elt F) → (⟨S4x256x16, .f32⟩ : BufTy).Contents (Elt F) → (⟨S4x256x16, .f32⟩ : BufTy).Contents (Elt F)),
    unary main_arg0 main_v9326 ((extractStridedSlice S4x1x256 ![0, 466, 0] · slices_S4x512x256_S4x1x256_0_466_0) : (⟨S4x512x256, .f32⟩ : BufTy).Contents (Elt F) → (⟨S4x1x256, .f32⟩ : BufTy).Contents (Elt F)),
    reshape main_v9326 main_v9327 rfl shapeCasts_S4x1x256_S4x256,
    unary main_v9327 main_v9328 (broadcastInDim S4x256x1 ![0, 1] bcast_S4x256_S4x256x1_0_1 : (⟨S4x256, .f32⟩ : BufTy).Contents (Elt F) → (⟨S4x256x1, .f32⟩ : BufTy).Contents (Elt F)),
    unary main_arg2 main_v9329 ((extractStridedSlice S4x1x16 ![0, 466, 0] · slices_S4x512x16_S4x1x16_0_466_0) : (⟨S4x512x16, .f32⟩ : BufTy).Contents (Elt F) → (⟨S4x1x16, .f32⟩ : BufTy).Contents (Elt F)),
    reshape main_v9329 main_v9330 rfl shapeCasts_S4x1x16_S4x16,
    unary main_v9330 main_v9331 (broadcastInDim S4x1x16 ![0, 2] bcast_S4x16_S4x1x16_0_2 : (⟨S4x16, .f32⟩ : BufTy).Contents (Elt F) → (⟨S4x1x16, .f32⟩ : BufTy).Contents (Elt F)),
    unary main_v9328 main_v9332 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9331 main_v9333 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9332 main_v9333 main_v9334 (mulf : (⟨S4x256x16, .f32⟩ : BufTy).Contents (Elt F) → (⟨S4x256x16, .f32⟩ : BufTy).Contents (Elt F) → (⟨S4x256x16, .f32⟩ : BufTy).Contents (Elt F)),
    binary main_v9325 main_v9334 main_v9335 (addf : (⟨S4x256x16, .f32⟩ : BufTy).Contents (Elt F) → (⟨S4x256x16, .f32⟩ : BufTy).Contents (Elt F) → (⟨S4x256x16, .f32⟩ : BufTy).Contents (Elt F)),
    unary main_arg3 main_v9336 ((extractStridedSlice S4x1x16 ![0, 466, 0] · slices_S4x512x16_S4x1x16_0_466_0) : (⟨S4x512x16, .f32⟩ : BufTy).Contents (Elt F) → (⟨S4x1x16, .f32⟩ : BufTy).Contents (Elt F)),
    reshape main_v9336 main_v9337 rfl shapeCasts_S4x1x16_S4x16,
    unary main_v9337 main_v9338 (broadcastInDim S4x1x16 ![0, 2] bcast_S4x16_S4x1x16_0_2 : (⟨S4x16, .f32⟩ : BufTy).Contents (Elt F) → (⟨S4x1x16, .f32⟩ : BufTy).Contents (Elt F)),
    unary main_v9338 main_v9339 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9335 main_v9339 main_v9340 (mulf : (⟨S4x256x16, .f32⟩ : BufTy).Contents (Elt F) → (⟨S4x256x16, .f32⟩ : BufTy).Contents (Elt F) → (⟨S4x256x16, .f32⟩ : BufTy).Contents (Elt F)),
    nullary main_cst_932 (constant S_ .f32 0x00000000#32),
    binary main_v9340 main_cst_932 main_v9341 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_933 (constantI S_ 32 466#32),
    unary main_c_933 main_v9342 (broadcastInDim S1 ![] bcast_S_S1 : (⟨S_, .i32⟩ : BufTy).Contents (Elt F) → (⟨S1, .i32⟩ : BufTy).Contents (Elt F)),
    ternary main_v9323 main_v9342 main_v9341 main_v9343 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps466_ok : (stepOps466 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step466_val (V : Valuation τ sig (Elt Ideal)) :
    after (stepOps466 (F := Ideal)) V (no_index (Proc.devRef .tc main_v9335)) = stepH 466 (by decide) (V (Proc.devRef .tc main_arg0)) (V (Proc.devRef .tc main_v3)) (V (Proc.devRef .tc main_arg2)) (V (Proc.devRef .tc main_v9315))
    ∧ after (stepOps466 (F := Ideal)) V (no_index (Proc.devRef .tc main_v9343)) = stepY 466 (by decide) (V (Proc.devRef .tc main_arg3)) (stepH 466 (by decide) (V (Proc.devRef .tc main_arg0)) (V (Proc.devRef .tc main_v3)) (V (Proc.devRef .tc main_arg2)) (V (Proc.devRef .tc main_v9315))) (V (Proc.devRef .tc main_v9323)) := by
  simp only [stepOps466]
  after_results_simp
  first | exact ⟨rfl, rfl⟩ | fail "value"
/-- Step 467 of the loop: operations 10281 … 10302 of the program. -/
abbrev stepOps467 : List (HloOp τ sig (Elt F)) :=
  [ unary main_v3 main_v9344 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9335 main_v9344 main_v9345 (mulf : (⟨S4x256x16, .f32⟩ : BufTy).Contents (Elt F) → (⟨S4x256x16, .f32⟩ : BufTy).Contents (Elt F) → (⟨S4x256x16, .f32⟩ : BufTy).Contents (Elt F)),
    unary main_arg0 main_v9346 ((extractStridedSlice S4x1x256 ![0, 467, 0] · slices_S4x512x256_S4x1x256_0_467_0) : (⟨S4x512x256, .f32⟩ : BufTy).Contents (Elt F) → (⟨S4x1x256, .f32⟩ : BufTy).Contents (Elt F)),
    reshape main_v9346 main_v9347 rfl shapeCasts_S4x1x256_S4x256,
    unary main_v9347 main_v9348 (broadcastInDim S4x256x1 ![0, 1] bcast_S4x256_S4x256x1_0_1 : (⟨S4x256, .f32⟩ : BufTy).Contents (Elt F) → (⟨S4x256x1, .f32⟩ : BufTy).Contents (Elt F)),
    unary main_arg2 main_v9349 ((extractStridedSlice S4x1x16 ![0, 467, 0] · slices_S4x512x16_S4x1x16_0_467_0) : (⟨S4x512x16, .f32⟩ : BufTy).Contents (Elt F) → (⟨S4x1x16, .f32⟩ : BufTy).Contents (Elt F)),
    reshape main_v9349 main_v9350 rfl shapeCasts_S4x1x16_S4x16,
    unary main_v9350 main_v9351 (broadcastInDim S4x1x16 ![0, 2] bcast_S4x16_S4x1x16_0_2 : (⟨S4x16, .f32⟩ : BufTy).Contents (Elt F) → (⟨S4x1x16, .f32⟩ : BufTy).Contents (Elt F)),
    unary main_v9348 main_v9352 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9351 main_v9353 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9352 main_v9353 main_v9354 (mulf : (⟨S4x256x16, .f32⟩ : BufTy).Contents (Elt F) → (⟨S4x256x16, .f32⟩ : BufTy).Contents (Elt F) → (⟨S4x256x16, .f32⟩ : BufTy).Contents (Elt F)),
    binary main_v9345 main_v9354 main_v9355 (addf : (⟨S4x256x16, .f32⟩ : BufTy).Contents (Elt F) → (⟨S4x256x16, .f32⟩ : BufTy).Contents (Elt F) → (⟨S4x256x16, .f32⟩ : BufTy).Contents (Elt F)),
    unary main_arg3 main_v9356 ((extractStridedSlice S4x1x16 ![0, 467, 0] · slices_S4x512x16_S4x1x16_0_467_0) : (⟨S4x512x16, .f32⟩ : BufTy).Contents (Elt F) → (⟨S4x1x16, .f32⟩ : BufTy).Contents (Elt F)),
    reshape main_v9356 main_v9357 rfl shapeCasts_S4x1x16_S4x16,
    unary main_v9357 main_v9358 (broadcastInDim S4x1x16 ![0, 2] bcast_S4x16_S4x1x16_0_2 : (⟨S4x16, .f32⟩ : BufTy).Contents (Elt F) → (⟨S4x1x16, .f32⟩ : BufTy).Contents (Elt F)),
    unary main_v9358 main_v9359 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9355 main_v9359 main_v9360 (mulf : (⟨S4x256x16, .f32⟩ : BufTy).Contents (Elt F) → (⟨S4x256x16, .f32⟩ : BufTy).Contents (Elt F) → (⟨S4x256x16, .f32⟩ : BufTy).Contents (Elt F)),
    nullary main_cst_934 (constant S_ .f32 0x00000000#32),
    binary main_v9360 main_cst_934 main_v9361 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_935 (constantI S_ 32 467#32),
    unary main_c_935 main_v9362 (broadcastInDim S1 ![] bcast_S_S1 : (⟨S_, .i32⟩ : BufTy).Contents (Elt F) → (⟨S1, .i32⟩ : BufTy).Contents (Elt F)),
    ternary main_v9343 main_v9362 main_v9361 main_v9363 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps467_ok : (stepOps467 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step467_val (V : Valuation τ sig (Elt Ideal)) :
    after (stepOps467 (F := Ideal)) V (no_index (Proc.devRef .tc main_v9355)) = stepH 467 (by decide) (V (Proc.devRef .tc main_arg0)) (V (Proc.devRef .tc main_v3)) (V (Proc.devRef .tc main_arg2)) (V (Proc.devRef .tc main_v9335))
    ∧ after (stepOps467 (F := Ideal)) V (no_index (Proc.devRef .tc main_v9363)) = stepY 467 (by decide) (V (Proc.devRef .tc main_arg3)) (stepH 467 (by decide) (V (Proc.devRef .tc main_arg0)) (V (Proc.devRef .tc main_v3)) (V (Proc.devRef .tc main_arg2)) (V (Proc.devRef .tc main_v9335))) (V (Proc.devRef .tc main_v9343)) := by
  simp only [stepOps467]
  after_results_simp
  first | exact ⟨rfl, rfl⟩ | fail "value"
/-- Step 468 of the loop: operations 10303 … 10324 of the program. -/
abbrev stepOps468 : List (HloOp τ sig (Elt F)) :=
  [ unary main_v3 main_v9364 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9355 main_v9364 main_v9365 (mulf : (⟨S4x256x16, .f32⟩ : BufTy).Contents (Elt F) → (⟨S4x256x16, .f32⟩ : BufTy).Contents (Elt F) → (⟨S4x256x16, .f32⟩ : BufTy).Contents (Elt F)),
    unary main_arg0 main_v9366 ((extractStridedSlice S4x1x256 ![0, 468, 0] · slices_S4x512x256_S4x1x256_0_468_0) : (⟨S4x512x256, .f32⟩ : BufTy).Contents (Elt F) → (⟨S4x1x256, .f32⟩ : BufTy).Contents (Elt F)),
    reshape main_v9366 main_v9367 rfl shapeCasts_S4x1x256_S4x256,
    unary main_v9367 main_v9368 (broadcastInDim S4x256x1 ![0, 1] bcast_S4x256_S4x256x1_0_1 : (⟨S4x256, .f32⟩ : BufTy).Contents (Elt F) → (⟨S4x256x1, .f32⟩ : BufTy).Contents (Elt F)),
    unary main_arg2 main_v9369 ((extractStridedSlice S4x1x16 ![0, 468, 0] · slices_S4x512x16_S4x1x16_0_468_0) : (⟨S4x512x16, .f32⟩ : BufTy).Contents (Elt F) → (⟨S4x1x16, .f32⟩ : BufTy).Contents (Elt F)),
    reshape main_v9369 main_v9370 rfl shapeCasts_S4x1x16_S4x16,
    unary main_v9370 main_v9371 (broadcastInDim S4x1x16 ![0, 2] bcast_S4x16_S4x1x16_0_2 : (⟨S4x16, .f32⟩ : BufTy).Contents (Elt F) → (⟨S4x1x16, .f32⟩ : BufTy).Contents (Elt F)),
    unary main_v9368 main_v9372 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9371 main_v9373 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9372 main_v9373 main_v9374 (mulf : (⟨S4x256x16, .f32⟩ : BufTy).Contents (Elt F) → (⟨S4x256x16, .f32⟩ : BufTy).Contents (Elt F) → (⟨S4x256x16, .f32⟩ : BufTy).Contents (Elt F)),
    binary main_v9365 main_v9374 main_v9375 (addf : (⟨S4x256x16, .f32⟩ : BufTy).Contents (Elt F) → (⟨S4x256x16, .f32⟩ : BufTy).Contents (Elt F) → (⟨S4x256x16, .f32⟩ : BufTy).Contents (Elt F)),
    unary main_arg3 main_v9376 ((extractStridedSlice S4x1x16 ![0, 468, 0] · slices_S4x512x16_S4x1x16_0_468_0) : (⟨S4x512x16, .f32⟩ : BufTy).Contents (Elt F) → (⟨S4x1x16, .f32⟩ : BufTy).Contents (Elt F)),
    reshape main_v9376 main_v9377 rfl shapeCasts_S4x1x16_S4x16,
    unary main_v9377 main_v9378 (broadcastInDim S4x1x16 ![0, 2] bcast_S4x16_S4x1x16_0_2 : (⟨S4x16, .f32⟩ : BufTy).Contents (Elt F) → (⟨S4x1x16, .f32⟩ : BufTy).Contents (Elt F)),
    unary main_v9378 main_v9379 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9375 main_v9379 main_v9380 (mulf : (⟨S4x256x16, .f32⟩ : BufTy).Contents (Elt F) → (⟨S4x256x16, .f32⟩ : BufTy).Contents (Elt F) → (⟨S4x256x16, .f32⟩ : BufTy).Contents (Elt F)),
    nullary main_cst_936 (constant S_ .f32 0x00000000#32),
    binary main_v9380 main_cst_936 main_v9381 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_937 (constantI S_ 32 468#32),
    unary main_c_937 main_v9382 (broadcastInDim S1 ![] bcast_S_S1 : (⟨S_, .i32⟩ : BufTy).Contents (Elt F) → (⟨S1, .i32⟩ : BufTy).Contents (Elt F)),
    ternary main_v9363 main_v9382 main_v9381 main_v9383 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps468_ok : (stepOps468 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step468_val (V : Valuation τ sig (Elt Ideal)) :
    after (stepOps468 (F := Ideal)) V (no_index (Proc.devRef .tc main_v9375)) = stepH 468 (by decide) (V (Proc.devRef .tc main_arg0)) (V (Proc.devRef .tc main_v3)) (V (Proc.devRef .tc main_arg2)) (V (Proc.devRef .tc main_v9355))
    ∧ after (stepOps468 (F := Ideal)) V (no_index (Proc.devRef .tc main_v9383)) = stepY 468 (by decide) (V (Proc.devRef .tc main_arg3)) (stepH 468 (by decide) (V (Proc.devRef .tc main_arg0)) (V (Proc.devRef .tc main_v3)) (V (Proc.devRef .tc main_arg2)) (V (Proc.devRef .tc main_v9355))) (V (Proc.devRef .tc main_v9363)) := by
  simp only [stepOps468]
  after_results_simp
  first | exact ⟨rfl, rfl⟩ | fail "value"
/-- Step 469 of the loop: operations 10325 … 10346 of the program. -/
abbrev stepOps469 : List (HloOp τ sig (Elt F)) :=
  [ unary main_v3 main_v9384 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9375 main_v9384 main_v9385 (mulf : (⟨S4x256x16, .f32⟩ : BufTy).Contents (Elt F) → (⟨S4x256x16, .f32⟩ : BufTy).Contents (Elt F) → (⟨S4x256x16, .f32⟩ : BufTy).Contents (Elt F)),
    unary main_arg0 main_v9386 ((extractStridedSlice S4x1x256 ![0, 469, 0] · slices_S4x512x256_S4x1x256_0_469_0) : (⟨S4x512x256, .f32⟩ : BufTy).Contents (Elt F) → (⟨S4x1x256, .f32⟩ : BufTy).Contents (Elt F)),
    reshape main_v9386 main_v9387 rfl shapeCasts_S4x1x256_S4x256,
    unary main_v9387 main_v9388 (broadcastInDim S4x256x1 ![0, 1] bcast_S4x256_S4x256x1_0_1 : (⟨S4x256, .f32⟩ : BufTy).Contents (Elt F) → (⟨S4x256x1, .f32⟩ : BufTy).Contents (Elt F)),
    unary main_arg2 main_v9389 ((extractStridedSlice S4x1x16 ![0, 469, 0] · slices_S4x512x16_S4x1x16_0_469_0) : (⟨S4x512x16, .f32⟩ : BufTy).Contents (Elt F) → (⟨S4x1x16, .f32⟩ : BufTy).Contents (Elt F)),
    reshape main_v9389 main_v9390 rfl shapeCasts_S4x1x16_S4x16,
    unary main_v9390 main_v9391 (broadcastInDim S4x1x16 ![0, 2] bcast_S4x16_S4x1x16_0_2 : (⟨S4x16, .f32⟩ : BufTy).Contents (Elt F) → (⟨S4x1x16, .f32⟩ : BufTy).Contents (Elt F)),
    unary main_v9388 main_v9392 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9391 main_v9393 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9392 main_v9393 main_v9394 (mulf : (⟨S4x256x16, .f32⟩ : BufTy).Contents (Elt F) → (⟨S4x256x16, .f32⟩ : BufTy).Contents (Elt F) → (⟨S4x256x16, .f32⟩ : BufTy).Contents (Elt F)),
    binary main_v9385 main_v9394 main_v9395 (addf : (⟨S4x256x16, .f32⟩ : BufTy).Contents (Elt F) → (⟨S4x256x16, .f32⟩ : BufTy).Contents (Elt F) → (⟨S4x256x16, .f32⟩ : BufTy).Contents (Elt F)),
    unary main_arg3 main_v9396 ((extractStridedSlice S4x1x16 ![0, 469, 0] · slices_S4x512x16_S4x1x16_0_469_0) : (⟨S4x512x16, .f32⟩ : BufTy).Contents (Elt F) → (⟨S4x1x16, .f32⟩ : BufTy).Contents (Elt F)),
    reshape main_v9396 main_v9397 rfl shapeCasts_S4x1x16_S4x16,
    unary main_v9397 main_v9398 (broadcastInDim S4x1x16 ![0, 2] bcast_S4x16_S4x1x16_0_2 : (⟨S4x16, .f32⟩ : BufTy).Contents (Elt F) → (⟨S4x1x16, .f32⟩ : BufTy).Contents (Elt F)),
    unary main_v9398 main_v9399 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9395 main_v9399 main_v9400 (mulf : (⟨S4x256x16, .f32⟩ : BufTy).Contents (Elt F) → (⟨S4x256x16, .f32⟩ : BufTy).Contents (Elt F) → (⟨S4x256x16, .f32⟩ : BufTy).Contents (Elt F)),
    nullary main_cst_938 (constant S_ .f32 0x00000000#32),
    binary main_v9400 main_cst_938 main_v9401 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_939 (constantI S_ 32 469#32),
    unary main_c_939 main_v9402 (broadcastInDim S1 ![] bcast_S_S1 : (⟨S_, .i32⟩ : BufTy).Contents (Elt F) → (⟨S1, .i32⟩ : BufTy).Contents (Elt F)),
    ternary main_v9383 main_v9402 main_v9401 main_v9403 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps469_ok : (stepOps469 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step469_val (V : Valuation τ sig (Elt Ideal)) :
    after (stepOps469 (F := Ideal)) V (no_index (Proc.devRef .tc main_v9395)) = stepH 469 (by decide) (V (Proc.devRef .tc main_arg0)) (V (Proc.devRef .tc main_v3)) (V (Proc.devRef .tc main_arg2)) (V (Proc.devRef .tc main_v9375))
    ∧ after (stepOps469 (F := Ideal)) V (no_index (Proc.devRef .tc main_v9403)) = stepY 469 (by decide) (V (Proc.devRef .tc main_arg3)) (stepH 469 (by decide) (V (Proc.devRef .tc main_arg0)) (V (Proc.devRef .tc main_v3)) (V (Proc.devRef .tc main_arg2)) (V (Proc.devRef .tc main_v9375))) (V (Proc.devRef .tc main_v9383)) := by
  simp only [stepOps469]
  after_results_simp
  first | exact ⟨rfl, rfl⟩ | fail "value"
/-- Step 470 of the loop: operations 10347 … 10368 of the program. -/
abbrev stepOps470 : List (HloOp τ sig (Elt F)) :=
  [ unary main_v3 main_v9404 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9395 main_v9404 main_v9405 (mulf : (⟨S4x256x16, .f32⟩ : BufTy).Contents (Elt F) → (⟨S4x256x16, .f32⟩ : BufTy).Contents (Elt F) → (⟨S4x256x16, .f32⟩ : BufTy).Contents (Elt F)),
    unary main_arg0 main_v9406 ((extractStridedSlice S4x1x256 ![0, 470, 0] · slices_S4x512x256_S4x1x256_0_470_0) : (⟨S4x512x256, .f32⟩ : BufTy).Contents (Elt F) → (⟨S4x1x256, .f32⟩ : BufTy).Contents (Elt F)),
    reshape main_v9406 main_v9407 rfl shapeCasts_S4x1x256_S4x256,
    unary main_v9407 main_v9408 (broadcastInDim S4x256x1 ![0, 1] bcast_S4x256_S4x256x1_0_1 : (⟨S4x256, .f32⟩ : BufTy).Contents (Elt F) → (⟨S4x256x1, .f32⟩ : BufTy).Contents (Elt F)),
    unary main_arg2 main_v9409 ((extractStridedSlice S4x1x16 ![0, 470, 0] · slices_S4x512x16_S4x1x16_0_470_0) : (⟨S4x512x16, .f32⟩ : BufTy).Contents (Elt F) → (⟨S4x1x16, .f32⟩ : BufTy).Contents (Elt F)),
    reshape main_v9409 main_v9410 rfl shapeCasts_S4x1x16_S4x16,
    unary main_v9410 main_v9411 (broadcastInDim S4x1x16 ![0, 2] bcast_S4x16_S4x1x16_0_2 : (⟨S4x16, .f32⟩ : BufTy).Contents (Elt F) → (⟨S4x1x16, .f32⟩ : BufTy).Contents (Elt F)),
    unary main_v9408 main_v9412 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9411 main_v9413 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9412 main_v9413 main_v9414 (mulf : (⟨S4x256x16, .f32⟩ : BufTy).Contents (Elt F) → (⟨S4x256x16, .f32⟩ : BufTy).Contents (Elt F) → (⟨S4x256x16, .f32⟩ : BufTy).Contents (Elt F)),
    binary main_v9405 main_v9414 main_v9415 (addf : (⟨S4x256x16, .f32⟩ : BufTy).Contents (Elt F) → (⟨S4x256x16, .f32⟩ : BufTy).Contents (Elt F) → (⟨S4x256x16, .f32⟩ : BufTy).Contents (Elt F)),
    unary main_arg3 main_v9416 ((extractStridedSlice S4x1x16 ![0, 470, 0] · slices_S4x512x16_S4x1x16_0_470_0) : (⟨S4x512x16, .f32⟩ : BufTy).Contents (Elt F) → (⟨S4x1x16, .f32⟩ : BufTy).Contents (Elt F)),
    reshape main_v9416 main_v9417 rfl shapeCasts_S4x1x16_S4x16,
    unary main_v9417 main_v9418 (broadcastInDim S4x1x16 ![0, 2] bcast_S4x16_S4x1x16_0_2 : (⟨S4x16, .f32⟩ : BufTy).Contents (Elt F) → (⟨S4x1x16, .f32⟩ : BufTy).Contents (Elt F)),
    unary main_v9418 main_v9419 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9415 main_v9419 main_v9420 (mulf : (⟨S4x256x16, .f32⟩ : BufTy).Contents (Elt F) → (⟨S4x256x16, .f32⟩ : BufTy).Contents (Elt F) → (⟨S4x256x16, .f32⟩ : BufTy).Contents (Elt F)),
    nullary main_cst_940 (constant S_ .f32 0x00000000#32),
    binary main_v9420 main_cst_940 main_v9421 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_941 (constantI S_ 32 470#32),
    unary main_c_941 main_v9422 (broadcastInDim S1 ![] bcast_S_S1 : (⟨S_, .i32⟩ : BufTy).Contents (Elt F) → (⟨S1, .i32⟩ : BufTy).Contents (Elt F)),
    ternary main_v9403 main_v9422 main_v9421 main_v9423 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps470_ok : (stepOps470 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step470_val (V : Valuation τ sig (Elt Ideal)) :
    after (stepOps470 (F := Ideal)) V (no_index (Proc.devRef .tc main_v9415)) = stepH 470 (by decide) (V (Proc.devRef .tc main_arg0)) (V (Proc.devRef .tc main_v3)) (V (Proc.devRef .tc main_arg2)) (V (Proc.devRef .tc main_v9395))
    ∧ after (stepOps470 (F := Ideal)) V (no_index (Proc.devRef .tc main_v9423)) = stepY 470 (by decide) (V (Proc.devRef .tc main_arg3)) (stepH 470 (by decide) (V (Proc.devRef .tc main_arg0)) (V (Proc.devRef .tc main_v3)) (V (Proc.devRef .tc main_arg2)) (V (Proc.devRef .tc main_v9395))) (V (Proc.devRef .tc main_v9403)) := by
  simp only [stepOps470]
  after_results_simp
  first | exact ⟨rfl, rfl⟩ | fail "value"
/-- Step 471 of the loop: operations 10369 … 10390 of the program. -/
abbrev stepOps471 : List (HloOp τ sig (Elt F)) :=
  [ unary main_v3 main_v9424 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9415 main_v9424 main_v9425 (mulf : (⟨S4x256x16, .f32⟩ : BufTy).Contents (Elt F) → (⟨S4x256x16, .f32⟩ : BufTy).Contents (Elt F) → (⟨S4x256x16, .f32⟩ : BufTy).Contents (Elt F)),
    unary main_arg0 main_v9426 ((extractStridedSlice S4x1x256 ![0, 471, 0] · slices_S4x512x256_S4x1x256_0_471_0) : (⟨S4x512x256, .f32⟩ : BufTy).Contents (Elt F) → (⟨S4x1x256, .f32⟩ : BufTy).Contents (Elt F)),
    reshape main_v9426 main_v9427 rfl shapeCasts_S4x1x256_S4x256,
    unary main_v9427 main_v9428 (broadcastInDim S4x256x1 ![0, 1] bcast_S4x256_S4x256x1_0_1 : (⟨S4x256, .f32⟩ : BufTy).Contents (Elt F) → (⟨S4x256x1, .f32⟩ : BufTy).Contents (Elt F)),
    unary main_arg2 main_v9429 ((extractStridedSlice S4x1x16 ![0, 471, 0] · slices_S4x512x16_S4x1x16_0_471_0) : (⟨S4x512x16, .f32⟩ : BufTy).Contents (Elt F) → (⟨S4x1x16, .f32⟩ : BufTy).Contents (Elt F)),
    reshape main_v9429 main_v9430 rfl shapeCasts_S4x1x16_S4x16,
    unary main_v9430 main_v9431 (broadcastInDim S4x1x16 ![0, 2] bcast_S4x16_S4x1x16_0_2 : (⟨S4x16, .f32⟩ : BufTy).Contents (Elt F) → (⟨S4x1x16, .f32⟩ : BufTy).Contents (Elt F)),
    unary main_v9428 main_v9432 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9431 main_v9433 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9432 main_v9433 main_v9434 (mulf : (⟨S4x256x16, .f32⟩ : BufTy).Contents (Elt F) → (⟨S4x256x16, .f32⟩ : BufTy).Contents (Elt F) → (⟨S4x256x16, .f32⟩ : BufTy).Contents (Elt F)),
    binary main_v9425 main_v9434 main_v9435 (addf : (⟨S4x256x16, .f32⟩ : BufTy).Contents (Elt F) → (⟨S4x256x16, .f32⟩ : BufTy).Contents (Elt F) → (⟨S4x256x16, .f32⟩ : BufTy).Contents (Elt F)),
    unary main_arg3 main_v9436 ((extractStridedSlice S4x1x16 ![0, 471, 0] · slices_S4x512x16_S4x1x16_0_471_0) : (⟨S4x512x16, .f32⟩ : BufTy).Contents (Elt F) → (⟨S4x1x16, .f32⟩ : BufTy).Contents (Elt F)),
    reshape main_v9436 main_v9437 rfl shapeCasts_S4x1x16_S4x16,
    unary main_v9437 main_v9438 (broadcastInDim S4x1x16 ![0, 2] bcast_S4x16_S4x1x16_0_2 : (⟨S4x16, .f32⟩ : BufTy).Contents (Elt F) → (⟨S4x1x16, .f32⟩ : BufTy).Contents (Elt F)),
    unary main_v9438 main_v9439 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9435 main_v9439 main_v9440 (mulf : (⟨S4x256x16, .f32⟩ : BufTy).Contents (Elt F) → (⟨S4x256x16, .f32⟩ : BufTy).Contents (Elt F) → (⟨S4x256x16, .f32⟩ : BufTy).Contents (Elt F)),
    nullary main_cst_942 (constant S_ .f32 0x00000000#32),
    binary main_v9440 main_cst_942 main_v9441 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_943 (constantI S_ 32 471#32),
    unary main_c_943 main_v9442 (broadcastInDim S1 ![] bcast_S_S1 : (⟨S_, .i32⟩ : BufTy).Contents (Elt F) → (⟨S1, .i32⟩ : BufTy).Contents (Elt F)),
    ternary main_v9423 main_v9442 main_v9441 main_v9443 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps471_ok : (stepOps471 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step471_val (V : Valuation τ sig (Elt Ideal)) :
    after (stepOps471 (F := Ideal)) V (no_index (Proc.devRef .tc main_v9435)) = stepH 471 (by decide) (V (Proc.devRef .tc main_arg0)) (V (Proc.devRef .tc main_v3)) (V (Proc.devRef .tc main_arg2)) (V (Proc.devRef .tc main_v9415))
    ∧ after (stepOps471 (F := Ideal)) V (no_index (Proc.devRef .tc main_v9443)) = stepY 471 (by decide) (V (Proc.devRef .tc main_arg3)) (stepH 471 (by decide) (V (Proc.devRef .tc main_arg0)) (V (Proc.devRef .tc main_v3)) (V (Proc.devRef .tc main_arg2)) (V (Proc.devRef .tc main_v9415))) (V (Proc.devRef .tc main_v9423)) := by
  simp only [stepOps471]
  after_results_simp
  first | exact ⟨rfl, rfl⟩ | fail "value"
/-- Step 472 of the loop: operations 10391 … 10412 of the program. -/
abbrev stepOps472 : List (HloOp τ sig (Elt F)) :=
  [ unary main_v3 main_v9444 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9435 main_v9444 main_v9445 (mulf : (⟨S4x256x16, .f32⟩ : BufTy).Contents (Elt F) → (⟨S4x256x16, .f32⟩ : BufTy).Contents (Elt F) → (⟨S4x256x16, .f32⟩ : BufTy).Contents (Elt F)),
    unary main_arg0 main_v9446 ((extractStridedSlice S4x1x256 ![0, 472, 0] · slices_S4x512x256_S4x1x256_0_472_0) : (⟨S4x512x256, .f32⟩ : BufTy).Contents (Elt F) → (⟨S4x1x256, .f32⟩ : BufTy).Contents (Elt F)),
    reshape main_v9446 main_v9447 rfl shapeCasts_S4x1x256_S4x256,
    unary main_v9447 main_v9448 (broadcastInDim S4x256x1 ![0, 1] bcast_S4x256_S4x256x1_0_1 : (⟨S4x256, .f32⟩ : BufTy).Contents (Elt F) → (⟨S4x256x1, .f32⟩ : BufTy).Contents (Elt F)),
    unary main_arg2 main_v9449 ((extractStridedSlice S4x1x16 ![0, 472, 0] · slices_S4x512x16_S4x1x16_0_472_0) : (⟨S4x512x16, .f32⟩ : BufTy).Contents (Elt F) → (⟨S4x1x16, .f32⟩ : BufTy).Contents (Elt F)),
    reshape main_v9449 main_v9450 rfl shapeCasts_S4x1x16_S4x16,
    unary main_v9450 main_v9451 (broadcastInDim S4x1x16 ![0, 2] bcast_S4x16_S4x1x16_0_2 : (⟨S4x16, .f32⟩ : BufTy).Contents (Elt F) → (⟨S4x1x16, .f32⟩ : BufTy).Contents (Elt F)),
    unary main_v9448 main_v9452 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9451 main_v9453 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9452 main_v9453 main_v9454 (mulf : (⟨S4x256x16, .f32⟩ : BufTy).Contents (Elt F) → (⟨S4x256x16, .f32⟩ : BufTy).Contents (Elt F) → (⟨S4x256x16, .f32⟩ : BufTy).Contents (Elt F)),
    binary main_v9445 main_v9454 main_v9455 (addf : (⟨S4x256x16, .f32⟩ : BufTy).Contents (Elt F) → (⟨S4x256x16, .f32⟩ : BufTy).Contents (Elt F) → (⟨S4x256x16, .f32⟩ : BufTy).Contents (Elt F)),
    unary main_arg3 main_v9456 ((extractStridedSlice S4x1x16 ![0, 472, 0] · slices_S4x512x16_S4x1x16_0_472_0) : (⟨S4x512x16, .f32⟩ : BufTy).Contents (Elt F) → (⟨S4x1x16, .f32⟩ : BufTy).Contents (Elt F)),
    reshape main_v9456 main_v9457 rfl shapeCasts_S4x1x16_S4x16,
    unary main_v9457 main_v9458 (broadcastInDim S4x1x16 ![0, 2] bcast_S4x16_S4x1x16_0_2 : (⟨S4x16, .f32⟩ : BufTy).Contents (Elt F) → (⟨S4x1x16, .f32⟩ : BufTy).Contents (Elt F)),
    unary main_v9458 main_v9459 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9455 main_v9459 main_v9460 (mulf : (⟨S4x256x16, .f32⟩ : BufTy).Contents (Elt F) → (⟨S4x256x16, .f32⟩ : BufTy).Contents (Elt F) → (⟨S4x256x16, .f32⟩ : BufTy).Contents (Elt F)),
    nullary main_cst_944 (constant S_ .f32 0x00000000#32),
    binary main_v9460 main_cst_944 main_v9461 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_945 (constantI S_ 32 472#32),
    unary main_c_945 main_v9462 (broadcastInDim S1 ![] bcast_S_S1 : (⟨S_, .i32⟩ : BufTy).Contents (Elt F) → (⟨S1, .i32⟩ : BufTy).Contents (Elt F)),
    ternary main_v9443 main_v9462 main_v9461 main_v9463 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps472_ok : (stepOps472 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step472_val (V : Valuation τ sig (Elt Ideal)) :
    after (stepOps472 (F := Ideal)) V (no_index (Proc.devRef .tc main_v9455)) = stepH 472 (by decide) (V (Proc.devRef .tc main_arg0)) (V (Proc.devRef .tc main_v3)) (V (Proc.devRef .tc main_arg2)) (V (Proc.devRef .tc main_v9435))
    ∧ after (stepOps472 (F := Ideal)) V (no_index (Proc.devRef .tc main_v9463)) = stepY 472 (by decide) (V (Proc.devRef .tc main_arg3)) (stepH 472 (by decide) (V (Proc.devRef .tc main_arg0)) (V (Proc.devRef .tc main_v3)) (V (Proc.devRef .tc main_arg2)) (V (Proc.devRef .tc main_v9435))) (V (Proc.devRef .tc main_v9443)) := by
  simp only [stepOps472]
  after_results_simp
  first | exact ⟨rfl, rfl⟩ | fail "value"
/-- Step 473 of the loop: operations 10413 … 10434 of the program. -/
abbrev stepOps473 : List (HloOp τ sig (Elt F)) :=
  [ unary main_v3 main_v9464 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9455 main_v9464 main_v9465 (mulf : (⟨S4x256x16, .f32⟩ : BufTy).Contents (Elt F) → (⟨S4x256x16, .f32⟩ : BufTy).Contents (Elt F) → (⟨S4x256x16, .f32⟩ : BufTy).Contents (Elt F)),
    unary main_arg0 main_v9466 ((extractStridedSlice S4x1x256 ![0, 473, 0] · slices_S4x512x256_S4x1x256_0_473_0) : (⟨S4x512x256, .f32⟩ : BufTy).Contents (Elt F) → (⟨S4x1x256, .f32⟩ : BufTy).Contents (Elt F)),
    reshape main_v9466 main_v9467 rfl shapeCasts_S4x1x256_S4x256,
    unary main_v9467 main_v9468 (broadcastInDim S4x256x1 ![0, 1] bcast_S4x256_S4x256x1_0_1 : (⟨S4x256, .f32⟩ : BufTy).Contents (Elt F) → (⟨S4x256x1, .f32⟩ : BufTy).Contents (Elt F)),
    unary main_arg2 main_v9469 ((extractStridedSlice S4x1x16 ![0, 473, 0] · slices_S4x512x16_S4x1x16_0_473_0) : (⟨S4x512x16, .f32⟩ : BufTy).Contents (Elt F) → (⟨S4x1x16, .f32⟩ : BufTy).Contents (Elt F)),
    reshape main_v9469 main_v9470 rfl shapeCasts_S4x1x16_S4x16,
    unary main_v9470 main_v9471 (broadcastInDim S4x1x16 ![0, 2] bcast_S4x16_S4x1x16_0_2 : (⟨S4x16, .f32⟩ : BufTy).Contents (Elt F) → (⟨S4x1x16, .f32⟩ : BufTy).Contents (Elt F)),
    unary main_v9468 main_v9472 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9471 main_v9473 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9472 main_v9473 main_v9474 (mulf : (⟨S4x256x16, .f32⟩ : BufTy).Contents (Elt F) → (⟨S4x256x16, .f32⟩ : BufTy).Contents (Elt F) → (⟨S4x256x16, .f32⟩ : BufTy).Contents (Elt F)),
    binary main_v9465 main_v9474 main_v9475 (addf : (⟨S4x256x16, .f32⟩ : BufTy).Contents (Elt F) → (⟨S4x256x16, .f32⟩ : BufTy).Contents (Elt F) → (⟨S4x256x16, .f32⟩ : BufTy).Contents (Elt F)),
    unary main_arg3 main_v9476 ((extractStridedSlice S4x1x16 ![0, 473, 0] · slices_S4x512x16_S4x1x16_0_473_0) : (⟨S4x512x16, .f32⟩ : BufTy).Contents (Elt F) → (⟨S4x1x16, .f32⟩ : BufTy).Contents (Elt F)),
    reshape main_v9476 main_v9477 rfl shapeCasts_S4x1x16_S4x16,
    unary main_v9477 main_v9478 (broadcastInDim S4x1x16 ![0, 2] bcast_S4x16_S4x1x16_0_2 : (⟨S4x16, .f32⟩ : BufTy).Contents (Elt F) → (⟨S4x1x16, .f32⟩ : BufTy).Contents (Elt F)),
    unary main_v9478 main_v9479 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9475 main_v9479 main_v9480 (mulf : (⟨S4x256x16, .f32⟩ : BufTy).Contents (Elt F) → (⟨S4x256x16, .f32⟩ : BufTy).Contents (Elt F) → (⟨S4x256x16, .f32⟩ : BufTy).Contents (Elt F)),
    nullary main_cst_946 (constant S_ .f32 0x00000000#32),
    binary main_v9480 main_cst_946 main_v9481 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_947 (constantI S_ 32 473#32),
    unary main_c_947 main_v9482 (broadcastInDim S1 ![] bcast_S_S1 : (⟨S_, .i32⟩ : BufTy).Contents (Elt F) → (⟨S1, .i32⟩ : BufTy).Contents (Elt F)),
    ternary main_v9463 main_v9482 main_v9481 main_v9483 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps473_ok : (stepOps473 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step473_val (V : Valuation τ sig (Elt Ideal)) :
    after (stepOps473 (F := Ideal)) V (no_index (Proc.devRef .tc main_v9475)) = stepH 473 (by decide) (V (Proc.devRef .tc main_arg0)) (V (Proc.devRef .tc main_v3)) (V (Proc.devRef .tc main_arg2)) (V (Proc.devRef .tc main_v9455))
    ∧ after (stepOps473 (F := Ideal)) V (no_index (Proc.devRef .tc main_v9483)) = stepY 473 (by decide) (V (Proc.devRef .tc main_arg3)) (stepH 473 (by decide) (V (Proc.devRef .tc main_arg0)) (V (Proc.devRef .tc main_v3)) (V (Proc.devRef .tc main_arg2)) (V (Proc.devRef .tc main_v9455))) (V (Proc.devRef .tc main_v9463)) := by
  simp only [stepOps473]
  after_results_simp
  first | exact ⟨rfl, rfl⟩ | fail "value"
/-- Step 474 of the loop: operations 10435 … 10456 of the program. -/
abbrev stepOps474 : List (HloOp τ sig (Elt F)) :=
  [ unary main_v3 main_v9484 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9475 main_v9484 main_v9485 (mulf : (⟨S4x256x16, .f32⟩ : BufTy).Contents (Elt F) → (⟨S4x256x16, .f32⟩ : BufTy).Contents (Elt F) → (⟨S4x256x16, .f32⟩ : BufTy).Contents (Elt F)),
    unary main_arg0 main_v9486 ((extractStridedSlice S4x1x256 ![0, 474, 0] · slices_S4x512x256_S4x1x256_0_474_0) : (⟨S4x512x256, .f32⟩ : BufTy).Contents (Elt F) → (⟨S4x1x256, .f32⟩ : BufTy).Contents (Elt F)),
    reshape main_v9486 main_v9487 rfl shapeCasts_S4x1x256_S4x256,
    unary main_v9487 main_v9488 (broadcastInDim S4x256x1 ![0, 1] bcast_S4x256_S4x256x1_0_1 : (⟨S4x256, .f32⟩ : BufTy).Contents (Elt F) → (⟨S4x256x1, .f32⟩ : BufTy).Contents (Elt F)),
    unary main_arg2 main_v9489 ((extractStridedSlice S4x1x16 ![0, 474, 0] · slices_S4x512x16_S4x1x16_0_474_0) : (⟨S4x512x16, .f32⟩ : BufTy).Contents (Elt F) → (⟨S4x1x16, .f32⟩ : BufTy).Contents (Elt F)),
    reshape main_v9489 main_v9490 rfl shapeCasts_S4x1x16_S4x16,
    unary main_v9490 main_v9491 (broadcastInDim S4x1x16 ![0, 2] bcast_S4x16_S4x1x16_0_2 : (⟨S4x16, .f32⟩ : BufTy).Contents (Elt F) → (⟨S4x1x16, .f32⟩ : BufTy).Contents (Elt F)),
    unary main_v9488 main_v9492 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9491 main_v9493 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9492 main_v9493 main_v9494 (mulf : (⟨S4x256x16, .f32⟩ : BufTy).Contents (Elt F) → (⟨S4x256x16, .f32⟩ : BufTy).Contents (Elt F) → (⟨S4x256x16, .f32⟩ : BufTy).Contents (Elt F)),
    binary main_v9485 main_v9494 main_v9495 (addf : (⟨S4x256x16, .f32⟩ : BufTy).Contents (Elt F) → (⟨S4x256x16, .f32⟩ : BufTy).Contents (Elt F) → (⟨S4x256x16, .f32⟩ : BufTy).Contents (Elt F)),
    unary main_arg3 main_v9496 ((extractStridedSlice S4x1x16 ![0, 474, 0] · slices_S4x512x16_S4x1x16_0_474_0) : (⟨S4x512x16, .f32⟩ : BufTy).Contents (Elt F) → (⟨S4x1x16, .f32⟩ : BufTy).Contents (Elt F)),
    reshape main_v9496 main_v9497 rfl shapeCasts_S4x1x16_S4x16,
    unary main_v9497 main_v9498 (broadcastInDim S4x1x16 ![0, 2] bcast_S4x16_S4x1x16_0_2 : (⟨S4x16, .f32⟩ : BufTy).Contents (Elt F) → (⟨S4x1x16, .f32⟩ : BufTy).Contents (Elt F)),
    unary main_v9498 main_v9499 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9495 main_v9499 main_v9500 (mulf : (⟨S4x256x16, .f32⟩ : BufTy).Contents (Elt F) → (⟨S4x256x16, .f32⟩ : BufTy).Contents (Elt F) → (⟨S4x256x16, .f32⟩ : BufTy).Contents (Elt F)),
    nullary main_cst_948 (constant S_ .f32 0x00000000#32),
    binary main_v9500 main_cst_948 main_v9501 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_949 (constantI S_ 32 474#32),
    unary main_c_949 main_v9502 (broadcastInDim S1 ![] bcast_S_S1 : (⟨S_, .i32⟩ : BufTy).Contents (Elt F) → (⟨S1, .i32⟩ : BufTy).Contents (Elt F)),
    ternary main_v9483 main_v9502 main_v9501 main_v9503 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps474_ok : (stepOps474 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step474_val (V : Valuation τ sig (Elt Ideal)) :
    after (stepOps474 (F := Ideal)) V (no_index (Proc.devRef .tc main_v9495)) = stepH 474 (by decide) (V (Proc.devRef .tc main_arg0)) (V (Proc.devRef .tc main_v3)) (V (Proc.devRef .tc main_arg2)) (V (Proc.devRef .tc main_v9475))
    ∧ after (stepOps474 (F := Ideal)) V (no_index (Proc.devRef .tc main_v9503)) = stepY 474 (by decide) (V (Proc.devRef .tc main_arg3)) (stepH 474 (by decide) (V (Proc.devRef .tc main_arg0)) (V (Proc.devRef .tc main_v3)) (V (Proc.devRef .tc main_arg2)) (V (Proc.devRef .tc main_v9475))) (V (Proc.devRef .tc main_v9483)) := by
  simp only [stepOps474]
  after_results_simp
  first | exact ⟨rfl, rfl⟩ | fail "value"
/-- Step 475 of the loop: operations 10457 … 10478 of the program. -/
abbrev stepOps475 : List (HloOp τ sig (Elt F)) :=
  [ unary main_v3 main_v9504 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9495 main_v9504 main_v9505 (mulf : (⟨S4x256x16, .f32⟩ : BufTy).Contents (Elt F) → (⟨S4x256x16, .f32⟩ : BufTy).Contents (Elt F) → (⟨S4x256x16, .f32⟩ : BufTy).Contents (Elt F)),
    unary main_arg0 main_v9506 ((extractStridedSlice S4x1x256 ![0, 475, 0] · slices_S4x512x256_S4x1x256_0_475_0) : (⟨S4x512x256, .f32⟩ : BufTy).Contents (Elt F) → (⟨S4x1x256, .f32⟩ : BufTy).Contents (Elt F)),
    reshape main_v9506 main_v9507 rfl shapeCasts_S4x1x256_S4x256,
    unary main_v9507 main_v9508 (broadcastInDim S4x256x1 ![0, 1] bcast_S4x256_S4x256x1_0_1 : (⟨S4x256, .f32⟩ : BufTy).Contents (Elt F) → (⟨S4x256x1, .f32⟩ : BufTy).Contents (Elt F)),
    unary main_arg2 main_v9509 ((extractStridedSlice S4x1x16 ![0, 475, 0] · slices_S4x512x16_S4x1x16_0_475_0) : (⟨S4x512x16, .f32⟩ : BufTy).Contents (Elt F) → (⟨S4x1x16, .f32⟩ : BufTy).Contents (Elt F)),
    reshape main_v9509 main_v9510 rfl shapeCasts_S4x1x16_S4x16,
    unary main_v9510 main_v9511 (broadcastInDim S4x1x16 ![0, 2] bcast_S4x16_S4x1x16_0_2 : (⟨S4x16, .f32⟩ : BufTy).Contents (Elt F) → (⟨S4x1x16, .f32⟩ : BufTy).Contents (Elt F)),
    unary main_v9508 main_v9512 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9511 main_v9513 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9512 main_v9513 main_v9514 (mulf : (⟨S4x256x16, .f32⟩ : BufTy).Contents (Elt F) → (⟨S4x256x16, .f32⟩ : BufTy).Contents (Elt F) → (⟨S4x256x16, .f32⟩ : BufTy).Contents (Elt F)),
    binary main_v9505 main_v9514 main_v9515 (addf : (⟨S4x256x16, .f32⟩ : BufTy).Contents (Elt F) → (⟨S4x256x16, .f32⟩ : BufTy).Contents (Elt F) → (⟨S4x256x16, .f32⟩ : BufTy).Contents (Elt F)),
    unary main_arg3 main_v9516 ((extractStridedSlice S4x1x16 ![0, 475, 0] · slices_S4x512x16_S4x1x16_0_475_0) : (⟨S4x512x16, .f32⟩ : BufTy).Contents (Elt F) → (⟨S4x1x16, .f32⟩ : BufTy).Contents (Elt F)),
    reshape main_v9516 main_v9517 rfl shapeCasts_S4x1x16_S4x16,
    unary main_v9517 main_v9518 (broadcastInDim S4x1x16 ![0, 2] bcast_S4x16_S4x1x16_0_2 : (⟨S4x16, .f32⟩ : BufTy).Contents (Elt F) → (⟨S4x1x16, .f32⟩ : BufTy).Contents (Elt F)),
    unary main_v9518 main_v9519 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9515 main_v9519 main_v9520 (mulf : (⟨S4x256x16, .f32⟩ : BufTy).Contents (Elt F) → (⟨S4x256x16, .f32⟩ : BufTy).Contents (Elt F) → (⟨S4x256x16, .f32⟩ : BufTy).Contents (Elt F)),
    nullary main_cst_950 (constant S_ .f32 0x00000000#32),
    binary main_v9520 main_cst_950 main_v9521 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_951 (constantI S_ 32 475#32),
    unary main_c_951 main_v9522 (broadcastInDim S1 ![] bcast_S_S1 : (⟨S_, .i32⟩ : BufTy).Contents (Elt F) → (⟨S1, .i32⟩ : BufTy).Contents (Elt F)),
    ternary main_v9503 main_v9522 main_v9521 main_v9523 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps475_ok : (stepOps475 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step475_val (V : Valuation τ sig (Elt Ideal)) :
    after (stepOps475 (F := Ideal)) V (no_index (Proc.devRef .tc main_v9515)) = stepH 475 (by decide) (V (Proc.devRef .tc main_arg0)) (V (Proc.devRef .tc main_v3)) (V (Proc.devRef .tc main_arg2)) (V (Proc.devRef .tc main_v9495))
    ∧ after (stepOps475 (F := Ideal)) V (no_index (Proc.devRef .tc main_v9523)) = stepY 475 (by decide) (V (Proc.devRef .tc main_arg3)) (stepH 475 (by decide) (V (Proc.devRef .tc main_arg0)) (V (Proc.devRef .tc main_v3)) (V (Proc.devRef .tc main_arg2)) (V (Proc.devRef .tc main_v9495))) (V (Proc.devRef .tc main_v9503)) := by
  simp only [stepOps475]
  after_results_simp
  first | exact ⟨rfl, rfl⟩ | fail "value"
/-- Step 476 of the loop: operations 10479 … 10500 of the program. -/
abbrev stepOps476 : List (HloOp τ sig (Elt F)) :=
  [ unary main_v3 main_v9524 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9515 main_v9524 main_v9525 (mulf : (⟨S4x256x16, .f32⟩ : BufTy).Contents (Elt F) → (⟨S4x256x16, .f32⟩ : BufTy).Contents (Elt F) → (⟨S4x256x16, .f32⟩ : BufTy).Contents (Elt F)),
    unary main_arg0 main_v9526 ((extractStridedSlice S4x1x256 ![0, 476, 0] · slices_S4x512x256_S4x1x256_0_476_0) : (⟨S4x512x256, .f32⟩ : BufTy).Contents (Elt F) → (⟨S4x1x256, .f32⟩ : BufTy).Contents (Elt F)),
    reshape main_v9526 main_v9527 rfl shapeCasts_S4x1x256_S4x256,
    unary main_v9527 main_v9528 (broadcastInDim S4x256x1 ![0, 1] bcast_S4x256_S4x256x1_0_1 : (⟨S4x256, .f32⟩ : BufTy).Contents (Elt F) → (⟨S4x256x1, .f32⟩ : BufTy).Contents (Elt F)),
    unary main_arg2 main_v9529 ((extractStridedSlice S4x1x16 ![0, 476, 0] · slices_S4x512x16_S4x1x16_0_476_0) : (⟨S4x512x16, .f32⟩ : BufTy).Contents (Elt F) → (⟨S4x1x16, .f32⟩ : BufTy).Contents (Elt F)),
    reshape main_v9529 main_v9530 rfl shapeCasts_S4x1x16_S4x16,
    unary main_v9530 main_v9531 (broadcastInDim S4x1x16 ![0, 2] bcast_S4x16_S4x1x16_0_2 : (⟨S4x16, .f32⟩ : BufTy).Contents (Elt F) → (⟨S4x1x16, .f32⟩ : BufTy).Contents (Elt F)),
    unary main_v9528 main_v9532 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9531 main_v9533 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9532 main_v9533 main_v9534 (mulf : (⟨S4x256x16, .f32⟩ : BufTy).Contents (Elt F) → (⟨S4x256x16, .f32⟩ : BufTy).Contents (Elt F) → (⟨S4x256x16, .f32⟩ : BufTy).Contents (Elt F)),
    binary main_v9525 main_v9534 main_v9535 (addf : (⟨S4x256x16, .f32⟩ : BufTy).Contents (Elt F) → (⟨S4x256x16, .f32⟩ : BufTy).Contents (Elt F) → (⟨S4x256x16, .f32⟩ : BufTy).Contents (Elt F)),
    unary main_arg3 main_v9536 ((extractStridedSlice S4x1x16 ![0, 476, 0] · slices_S4x512x16_S4x1x16_0_476_0) : (⟨S4x512x16, .f32⟩ : BufTy).Contents (Elt F) → (⟨S4x1x16, .f32⟩ : BufTy).Contents (Elt F)),
    reshape main_v9536 main_v9537 rfl shapeCasts_S4x1x16_S4x16,
    unary main_v9537 main_v9538 (broadcastInDim S4x1x16 ![0, 2] bcast_S4x16_S4x1x16_0_2 : (⟨S4x16, .f32⟩ : BufTy).Contents (Elt F) → (⟨S4x1x16, .f32⟩ : BufTy).Contents (Elt F)),
    unary main_v9538 main_v9539 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9535 main_v9539 main_v9540 (mulf : (⟨S4x256x16, .f32⟩ : BufTy).Contents (Elt F) → (⟨S4x256x16, .f32⟩ : BufTy).Contents (Elt F) → (⟨S4x256x16, .f32⟩ : BufTy).Contents (Elt F)),
    nullary main_cst_952 (constant S_ .f32 0x00000000#32),
    binary main_v9540 main_cst_952 main_v9541 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_953 (constantI S_ 32 476#32),
    unary main_c_953 main_v9542 (broadcastInDim S1 ![] bcast_S_S1 : (⟨S_, .i32⟩ : BufTy).Contents (Elt F) → (⟨S1, .i32⟩ : BufTy).Contents (Elt F)),
    ternary main_v9523 main_v9542 main_v9541 main_v9543 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps476_ok : (stepOps476 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step476_val (V : Valuation τ sig (Elt Ideal)) :
    after (stepOps476 (F := Ideal)) V (no_index (Proc.devRef .tc main_v9535)) = stepH 476 (by decide) (V (Proc.devRef .tc main_arg0)) (V (Proc.devRef .tc main_v3)) (V (Proc.devRef .tc main_arg2)) (V (Proc.devRef .tc main_v9515))
    ∧ after (stepOps476 (F := Ideal)) V (no_index (Proc.devRef .tc main_v9543)) = stepY 476 (by decide) (V (Proc.devRef .tc main_arg3)) (stepH 476 (by decide) (V (Proc.devRef .tc main_arg0)) (V (Proc.devRef .tc main_v3)) (V (Proc.devRef .tc main_arg2)) (V (Proc.devRef .tc main_v9515))) (V (Proc.devRef .tc main_v9523)) := by
  simp only [stepOps476]
  after_results_simp
  first | exact ⟨rfl, rfl⟩ | fail "value"
/-- Step 477 of the loop: operations 10501 … 10522 of the program. -/
abbrev stepOps477 : List (HloOp τ sig (Elt F)) :=
  [ unary main_v3 main_v9544 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9535 main_v9544 main_v9545 (mulf : (⟨S4x256x16, .f32⟩ : BufTy).Contents (Elt F) → (⟨S4x256x16, .f32⟩ : BufTy).Contents (Elt F) → (⟨S4x256x16, .f32⟩ : BufTy).Contents (Elt F)),
    unary main_arg0 main_v9546 ((extractStridedSlice S4x1x256 ![0, 477, 0] · slices_S4x512x256_S4x1x256_0_477_0) : (⟨S4x512x256, .f32⟩ : BufTy).Contents (Elt F) → (⟨S4x1x256, .f32⟩ : BufTy).Contents (Elt F)),
    reshape main_v9546 main_v9547 rfl shapeCasts_S4x1x256_S4x256,
    unary main_v9547 main_v9548 (broadcastInDim S4x256x1 ![0, 1] bcast_S4x256_S4x256x1_0_1 : (⟨S4x256, .f32⟩ : BufTy).Contents (Elt F) → (⟨S4x256x1, .f32⟩ : BufTy).Contents (Elt F)),
    unary main_arg2 main_v9549 ((extractStridedSlice S4x1x16 ![0, 477, 0] · slices_S4x512x16_S4x1x16_0_477_0) : (⟨S4x512x16, .f32⟩ : BufTy).Contents (Elt F) → (⟨S4x1x16, .f32⟩ : BufTy).Contents (Elt F)),
    reshape main_v9549 main_v9550 rfl shapeCasts_S4x1x16_S4x16,
    unary main_v9550 main_v9551 (broadcastInDim S4x1x16 ![0, 2] bcast_S4x16_S4x1x16_0_2 : (⟨S4x16, .f32⟩ : BufTy).Contents (Elt F) → (⟨S4x1x16, .f32⟩ : BufTy).Contents (Elt F)),
    unary main_v9548 main_v9552 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9551 main_v9553 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9552 main_v9553 main_v9554 (mulf : (⟨S4x256x16, .f32⟩ : BufTy).Contents (Elt F) → (⟨S4x256x16, .f32⟩ : BufTy).Contents (Elt F) → (⟨S4x256x16, .f32⟩ : BufTy).Contents (Elt F)),
    binary main_v9545 main_v9554 main_v9555 (addf : (⟨S4x256x16, .f32⟩ : BufTy).Contents (Elt F) → (⟨S4x256x16, .f32⟩ : BufTy).Contents (Elt F) → (⟨S4x256x16, .f32⟩ : BufTy).Contents (Elt F)),
    unary main_arg3 main_v9556 ((extractStridedSlice S4x1x16 ![0, 477, 0] · slices_S4x512x16_S4x1x16_0_477_0) : (⟨S4x512x16, .f32⟩ : BufTy).Contents (Elt F) → (⟨S4x1x16, .f32⟩ : BufTy).Contents (Elt F)),
    reshape main_v9556 main_v9557 rfl shapeCasts_S4x1x16_S4x16,
    unary main_v9557 main_v9558 (broadcastInDim S4x1x16 ![0, 2] bcast_S4x16_S4x1x16_0_2 : (⟨S4x16, .f32⟩ : BufTy).Contents (Elt F) → (⟨S4x1x16, .f32⟩ : BufTy).Contents (Elt F)),
    unary main_v9558 main_v9559 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9555 main_v9559 main_v9560 (mulf : (⟨S4x256x16, .f32⟩ : BufTy).Contents (Elt F) → (⟨S4x256x16, .f32⟩ : BufTy).Contents (Elt F) → (⟨S4x256x16, .f32⟩ : BufTy).Contents (Elt F)),
    nullary main_cst_954 (constant S_ .f32 0x00000000#32),
    binary main_v9560 main_cst_954 main_v9561 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_955 (constantI S_ 32 477#32),
    unary main_c_955 main_v9562 (broadcastInDim S1 ![] bcast_S_S1 : (⟨S_, .i32⟩ : BufTy).Contents (Elt F) → (⟨S1, .i32⟩ : BufTy).Contents (Elt F)),
    ternary main_v9543 main_v9562 main_v9561 main_v9563 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps477_ok : (stepOps477 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step477_val (V : Valuation τ sig (Elt Ideal)) :
    after (stepOps477 (F := Ideal)) V (no_index (Proc.devRef .tc main_v9555)) = stepH 477 (by decide) (V (Proc.devRef .tc main_arg0)) (V (Proc.devRef .tc main_v3)) (V (Proc.devRef .tc main_arg2)) (V (Proc.devRef .tc main_v9535))
    ∧ after (stepOps477 (F := Ideal)) V (no_index (Proc.devRef .tc main_v9563)) = stepY 477 (by decide) (V (Proc.devRef .tc main_arg3)) (stepH 477 (by decide) (V (Proc.devRef .tc main_arg0)) (V (Proc.devRef .tc main_v3)) (V (Proc.devRef .tc main_arg2)) (V (Proc.devRef .tc main_v9535))) (V (Proc.devRef .tc main_v9543)) := by
  simp only [stepOps477]
  after_results_simp
  first | exact ⟨rfl, rfl⟩ | fail "value"
/-- Step 478 of the loop: operations 10523 … 10544 of the program. -/
abbrev stepOps478 : List (HloOp τ sig (Elt F)) :=
  [ unary main_v3 main_v9564 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9555 main_v9564 main_v9565 (mulf : (⟨S4x256x16, .f32⟩ : BufTy).Contents (Elt F) → (⟨S4x256x16, .f32⟩ : BufTy).Contents (Elt F) → (⟨S4x256x16, .f32⟩ : BufTy).Contents (Elt F)),
    unary main_arg0 main_v9566 ((extractStridedSlice S4x1x256 ![0, 478, 0] · slices_S4x512x256_S4x1x256_0_478_0) : (⟨S4x512x256, .f32⟩ : BufTy).Contents (Elt F) → (⟨S4x1x256, .f32⟩ : BufTy).Contents (Elt F)),
    reshape main_v9566 main_v9567 rfl shapeCasts_S4x1x256_S4x256,
    unary main_v9567 main_v9568 (broadcastInDim S4x256x1 ![0, 1] bcast_S4x256_S4x256x1_0_1 : (⟨S4x256, .f32⟩ : BufTy).Contents (Elt F) → (⟨S4x256x1, .f32⟩ : BufTy).Contents (Elt F)),
    unary main_arg2 main_v9569 ((extractStridedSlice S4x1x16 ![0, 478, 0] · slices_S4x512x16_S4x1x16_0_478_0) : (⟨S4x512x16, .f32⟩ : BufTy).Contents (Elt F) → (⟨S4x1x16, .f32⟩ : BufTy).Contents (Elt F)),
    reshape main_v9569 main_v9570 rfl shapeCasts_S4x1x16_S4x16,
    unary main_v9570 main_v9571 (broadcastInDim S4x1x16 ![0, 2] bcast_S4x16_S4x1x16_0_2 : (⟨S4x16, .f32⟩ : BufTy).Contents (Elt F) → (⟨S4x1x16, .f32⟩ : BufTy).Contents (Elt F)),
    unary main_v9568 main_v9572 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9571 main_v9573 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9572 main_v9573 main_v9574 (mulf : (⟨S4x256x16, .f32⟩ : BufTy).Contents (Elt F) → (⟨S4x256x16, .f32⟩ : BufTy).Contents (Elt F) → (⟨S4x256x16, .f32⟩ : BufTy).Contents (Elt F)),
    binary main_v9565 main_v9574 main_v9575 (addf : (⟨S4x256x16, .f32⟩ : BufTy).Contents (Elt F) → (⟨S4x256x16, .f32⟩ : BufTy).Contents (Elt F) → (⟨S4x256x16, .f32⟩ : BufTy).Contents (Elt F)),
    unary main_arg3 main_v9576 ((extractStridedSlice S4x1x16 ![0, 478, 0] · slices_S4x512x16_S4x1x16_0_478_0) : (⟨S4x512x16, .f32⟩ : BufTy).Contents (Elt F) → (⟨S4x1x16, .f32⟩ : BufTy).Contents (Elt F)),
    reshape main_v9576 main_v9577 rfl shapeCasts_S4x1x16_S4x16,
    unary main_v9577 main_v9578 (broadcastInDim S4x1x16 ![0, 2] bcast_S4x16_S4x1x16_0_2 : (⟨S4x16, .f32⟩ : BufTy).Contents (Elt F) → (⟨S4x1x16, .f32⟩ : BufTy).Contents (Elt F)),
    unary main_v9578 main_v9579 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9575 main_v9579 main_v9580 (mulf : (⟨S4x256x16, .f32⟩ : BufTy).Contents (Elt F) → (⟨S4x256x16, .f32⟩ : BufTy).Contents (Elt F) → (⟨S4x256x16, .f32⟩ : BufTy).Contents (Elt F)),
    nullary main_cst_956 (constant S_ .f32 0x00000000#32),
    binary main_v9580 main_cst_956 main_v9581 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_957 (constantI S_ 32 478#32),
    unary main_c_957 main_v9582 (broadcastInDim S1 ![] bcast_S_S1 : (⟨S_, .i32⟩ : BufTy).Contents (Elt F) → (⟨S1, .i32⟩ : BufTy).Contents (Elt F)),
    ternary main_v9563 main_v9582 main_v9581 main_v9583 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps478_ok : (stepOps478 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step478_val (V : Valuation τ sig (Elt Ideal)) :
    after (stepOps478 (F := Ideal)) V (no_index (Proc.devRef .tc main_v9575)) = stepH 478 (by decide) (V (Proc.devRef .tc main_arg0)) (V (Proc.devRef .tc main_v3)) (V (Proc.devRef .tc main_arg2)) (V (Proc.devRef .tc main_v9555))
    ∧ after (stepOps478 (F := Ideal)) V (no_index (Proc.devRef .tc main_v9583)) = stepY 478 (by decide) (V (Proc.devRef .tc main_arg3)) (stepH 478 (by decide) (V (Proc.devRef .tc main_arg0)) (V (Proc.devRef .tc main_v3)) (V (Proc.devRef .tc main_arg2)) (V (Proc.devRef .tc main_v9555))) (V (Proc.devRef .tc main_v9563)) := by
  simp only [stepOps478]
  after_results_simp
  first | exact ⟨rfl, rfl⟩ | fail "value"
/-- Step 479 of the loop: operations 10545 … 10566 of the program. -/
abbrev stepOps479 : List (HloOp τ sig (Elt F)) :=
  [ unary main_v3 main_v9584 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9575 main_v9584 main_v9585 (mulf : (⟨S4x256x16, .f32⟩ : BufTy).Contents (Elt F) → (⟨S4x256x16, .f32⟩ : BufTy).Contents (Elt F) → (⟨S4x256x16, .f32⟩ : BufTy).Contents (Elt F)),
    unary main_arg0 main_v9586 ((extractStridedSlice S4x1x256 ![0, 479, 0] · slices_S4x512x256_S4x1x256_0_479_0) : (⟨S4x512x256, .f32⟩ : BufTy).Contents (Elt F) → (⟨S4x1x256, .f32⟩ : BufTy).Contents (Elt F)),
    reshape main_v9586 main_v9587 rfl shapeCasts_S4x1x256_S4x256,
    unary main_v9587 main_v9588 (broadcastInDim S4x256x1 ![0, 1] bcast_S4x256_S4x256x1_0_1 : (⟨S4x256, .f32⟩ : BufTy).Contents (Elt F) → (⟨S4x256x1, .f32⟩ : BufTy).Contents (Elt F)),
    unary main_arg2 main_v9589 ((extractStridedSlice S4x1x16 ![0, 479, 0] · slices_S4x512x16_S4x1x16_0_479_0) : (⟨S4x512x16, .f32⟩ : BufTy).Contents (Elt F) → (⟨S4x1x16, .f32⟩ : BufTy).Contents (Elt F)),
    reshape main_v9589 main_v9590 rfl shapeCasts_S4x1x16_S4x16,
    unary main_v9590 main_v9591 (broadcastInDim S4x1x16 ![0, 2] bcast_S4x16_S4x1x16_0_2 : (⟨S4x16, .f32⟩ : BufTy).Contents (Elt F) → (⟨S4x1x16, .f32⟩ : BufTy).Contents (Elt F)),
    unary main_v9588 main_v9592 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9591 main_v9593 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9592 main_v9593 main_v9594 (mulf : (⟨S4x256x16, .f32⟩ : BufTy).Contents (Elt F) → (⟨S4x256x16, .f32⟩ : BufTy).Contents (Elt F) → (⟨S4x256x16, .f32⟩ : BufTy).Contents (Elt F)),
    binary main_v9585 main_v9594 main_v9595 (addf : (⟨S4x256x16, .f32⟩ : BufTy).Contents (Elt F) → (⟨S4x256x16, .f32⟩ : BufTy).Contents (Elt F) → (⟨S4x256x16, .f32⟩ : BufTy).Contents (Elt F)),
    unary main_arg3 main_v9596 ((extractStridedSlice S4x1x16 ![0, 479, 0] · slices_S4x512x16_S4x1x16_0_479_0) : (⟨S4x512x16, .f32⟩ : BufTy).Contents (Elt F) → (⟨S4x1x16, .f32⟩ : BufTy).Contents (Elt F)),
    reshape main_v9596 main_v9597 rfl shapeCasts_S4x1x16_S4x16,
    unary main_v9597 main_v9598 (broadcastInDim S4x1x16 ![0, 2] bcast_S4x16_S4x1x16_0_2 : (⟨S4x16, .f32⟩ : BufTy).Contents (Elt F) → (⟨S4x1x16, .f32⟩ : BufTy).Contents (Elt F)),
    unary main_v9598 main_v9599 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9595 main_v9599 main_v9600 (mulf : (⟨S4x256x16, .f32⟩ : BufTy).Contents (Elt F) → (⟨S4x256x16, .f32⟩ : BufTy).Contents (Elt F) → (⟨S4x256x16, .f32⟩ : BufTy).Contents (Elt F)),
    nullary main_cst_958 (constant S_ .f32 0x00000000#32),
    binary main_v9600 main_cst_958 main_v9601 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_959 (constantI S_ 32 479#32),
    unary main_c_959 main_v9602 (broadcastInDim S1 ![] bcast_S_S1 : (⟨S_, .i32⟩ : BufTy).Contents (Elt F) → (⟨S1, .i32⟩ : BufTy).Contents (Elt F)),
    ternary main_v9583 main_v9602 main_v9601 main_v9603 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps479_ok : (stepOps479 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step479_val (V : Valuation τ sig (Elt Ideal)) :
    after (stepOps479 (F := Ideal)) V (no_index (Proc.devRef .tc main_v9595)) = stepH 479 (by decide) (V (Proc.devRef .tc main_arg0)) (V (Proc.devRef .tc main_v3)) (V (Proc.devRef .tc main_arg2)) (V (Proc.devRef .tc main_v9575))
    ∧ after (stepOps479 (F := Ideal)) V (no_index (Proc.devRef .tc main_v9603)) = stepY 479 (by decide) (V (Proc.devRef .tc main_arg3)) (stepH 479 (by decide) (V (Proc.devRef .tc main_arg0)) (V (Proc.devRef .tc main_v3)) (V (Proc.devRef .tc main_arg2)) (V (Proc.devRef .tc main_v9575))) (V (Proc.devRef .tc main_v9583)) := by
  simp only [stepOps479]
  after_results_simp
  first | exact ⟨rfl, rfl⟩ | fail "value"

end Cert.ReferenceIdeal.RefRun

end
-- ==== Proof.RefTableStep30.lean ====
/-
  Steps 480 … 495 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 480 of the loop: operations 10567 … 10588 of the program. -/
abbrev stepOps480 : List (HloOp τ sig (Elt F)) :=
  [ unary main_v3 main_v9604 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9595 main_v9604 main_v9605 (mulf : (⟨S4x256x16, .f32⟩ : BufTy).Contents (Elt F) → (⟨S4x256x16, .f32⟩ : BufTy).Contents (Elt F) → (⟨S4x256x16, .f32⟩ : BufTy).Contents (Elt F)),
    unary main_arg0 main_v9606 ((extractStridedSlice S4x1x256 ![0, 480, 0] · slices_S4x512x256_S4x1x256_0_480_0) : (⟨S4x512x256, .f32⟩ : BufTy).Contents (Elt F) → (⟨S4x1x256, .f32⟩ : BufTy).Contents (Elt F)),
    reshape main_v9606 main_v9607 rfl shapeCasts_S4x1x256_S4x256,
    unary main_v9607 main_v9608 (broadcastInDim S4x256x1 ![0, 1] bcast_S4x256_S4x256x1_0_1 : (⟨S4x256, .f32⟩ : BufTy).Contents (Elt F) → (⟨S4x256x1, .f32⟩ : BufTy).Contents (Elt F)),
    unary main_arg2 main_v9609 ((extractStridedSlice S4x1x16 ![0, 480, 0] · slices_S4x512x16_S4x1x16_0_480_0) : (⟨S4x512x16, .f32⟩ : BufTy).Contents (Elt F) → (⟨S4x1x16, .f32⟩ : BufTy).Contents (Elt F)),
    reshape main_v9609 main_v9610 rfl shapeCasts_S4x1x16_S4x16,
    unary main_v9610 main_v9611 (broadcastInDim S4x1x16 ![0, 2] bcast_S4x16_S4x1x16_0_2 : (⟨S4x16, .f32⟩ : BufTy).Contents (Elt F) → (⟨S4x1x16, .f32⟩ : BufTy).Contents (Elt F)),
    unary main_v9608 main_v9612 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9611 main_v9613 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9612 main_v9613 main_v9614 (mulf : (⟨S4x256x16, .f32⟩ : BufTy).Contents (Elt F) → (⟨S4x256x16, .f32⟩ : BufTy).Contents (Elt F) → (⟨S4x256x16, .f32⟩ : BufTy).Contents (Elt F)),
    binary main_v9605 main_v9614 main_v9615 (addf : (⟨S4x256x16, .f32⟩ : BufTy).Contents (Elt F) → (⟨S4x256x16, .f32⟩ : BufTy).Contents (Elt F) → (⟨S4x256x16, .f32⟩ : BufTy).Contents (Elt F)),
    unary main_arg3 main_v9616 ((extractStridedSlice S4x1x16 ![0, 480, 0] · slices_S4x512x16_S4x1x16_0_480_0) : (⟨S4x512x16, .f32⟩ : BufTy).Contents (Elt F) → (⟨S4x1x16, .f32⟩ : BufTy).Contents (Elt F)),
    reshape main_v9616 main_v9617 rfl shapeCasts_S4x1x16_S4x16,
    unary main_v9617 main_v9618 (broadcastInDim S4x1x16 ![0, 2] bcast_S4x16_S4x1x16_0_2 : (⟨S4x16, .f32⟩ : BufTy).Contents (Elt F) → (⟨S4x1x16, .f32⟩ : BufTy).Contents (Elt F)),
    unary main_v9618 main_v9619 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9615 main_v9619 main_v9620 (mulf : (⟨S4x256x16, .f32⟩ : BufTy).Contents (Elt F) → (⟨S4x256x16, .f32⟩ : BufTy).Contents (Elt F) → (⟨S4x256x16, .f32⟩ : BufTy).Contents (Elt F)),
    nullary main_cst_960 (constant S_ .f32 0x00000000#32),
    binary main_v9620 main_cst_960 main_v9621 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_961 (constantI S_ 32 480#32),
    unary main_c_961 main_v9622 (broadcastInDim S1 ![] bcast_S_S1 : (⟨S_, .i32⟩ : BufTy).Contents (Elt F) → (⟨S1, .i32⟩ : BufTy).Contents (Elt F)),
    ternary main_v9603 main_v9622 main_v9621 main_v9623 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps480_ok : (stepOps480 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step480_val (V : Valuation τ sig (Elt Ideal)) :
    after (stepOps480 (F := Ideal)) V (no_index (Proc.devRef .tc main_v9615)) = stepH 480 (by decide) (V (Proc.devRef .tc main_arg0)) (V (Proc.devRef .tc main_v3)) (V (Proc.devRef .tc main_arg2)) (V (Proc.devRef .tc main_v9595))
    ∧ after (stepOps480 (F := Ideal)) V (no_index (Proc.devRef .tc main_v9623)) = stepY 480 (by decide) (V (Proc.devRef .tc main_arg3)) (stepH 480 (by decide) (V (Proc.devRef .tc main_arg0)) (V (Proc.devRef .tc main_v3)) (V (Proc.devRef .tc main_arg2)) (V (Proc.devRef .tc main_v9595))) (V (Proc.devRef .tc main_v9603)) := by
  simp only [stepOps480]
  after_results_simp
  first | exact ⟨rfl, rfl⟩ | fail "value"
/-- Step 481 of the loop: operations 10589 … 10610 of the program. -/
abbrev stepOps481 : List (HloOp τ sig (Elt F)) :=
  [ unary main_v3 main_v9624 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9615 main_v9624 main_v9625 (mulf : (⟨S4x256x16, .f32⟩ : BufTy).Contents (Elt F) → (⟨S4x256x16, .f32⟩ : BufTy).Contents (Elt F) → (⟨S4x256x16, .f32⟩ : BufTy).Contents (Elt F)),
    unary main_arg0 main_v9626 ((extractStridedSlice S4x1x256 ![0, 481, 0] · slices_S4x512x256_S4x1x256_0_481_0) : (⟨S4x512x256, .f32⟩ : BufTy).Contents (Elt F) → (⟨S4x1x256, .f32⟩ : BufTy).Contents (Elt F)),
    reshape main_v9626 main_v9627 rfl shapeCasts_S4x1x256_S4x256,
    unary main_v9627 main_v9628 (broadcastInDim S4x256x1 ![0, 1] bcast_S4x256_S4x256x1_0_1 : (⟨S4x256, .f32⟩ : BufTy).Contents (Elt F) → (⟨S4x256x1, .f32⟩ : BufTy).Contents (Elt F)),
    unary main_arg2 main_v9629 ((extractStridedSlice S4x1x16 ![0, 481, 0] · slices_S4x512x16_S4x1x16_0_481_0) : (⟨S4x512x16, .f32⟩ : BufTy).Contents (Elt F) → (⟨S4x1x16, .f32⟩ : BufTy).Contents (Elt F)),
    reshape main_v9629 main_v9630 rfl shapeCasts_S4x1x16_S4x16,
    unary main_v9630 main_v9631 (broadcastInDim S4x1x16 ![0, 2] bcast_S4x16_S4x1x16_0_2 : (⟨S4x16, .f32⟩ : BufTy).Contents (Elt F) → (⟨S4x1x16, .f32⟩ : BufTy).Contents (Elt F)),
    unary main_v9628 main_v9632 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9631 main_v9633 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9632 main_v9633 main_v9634 (mulf : (⟨S4x256x16, .f32⟩ : BufTy).Contents (Elt F) → (⟨S4x256x16, .f32⟩ : BufTy).Contents (Elt F) → (⟨S4x256x16, .f32⟩ : BufTy).Contents (Elt F)),
    binary main_v9625 main_v9634 main_v9635 (addf : (⟨S4x256x16, .f32⟩ : BufTy).Contents (Elt F) → (⟨S4x256x16, .f32⟩ : BufTy).Contents (Elt F) → (⟨S4x256x16, .f32⟩ : BufTy).Contents (Elt F)),
    unary main_arg3 main_v9636 ((extractStridedSlice S4x1x16 ![0, 481, 0] · slices_S4x512x16_S4x1x16_0_481_0) : (⟨S4x512x16, .f32⟩ : BufTy).Contents (Elt F) → (⟨S4x1x16, .f32⟩ : BufTy).Contents (Elt F)),
    reshape main_v9636 main_v9637 rfl shapeCasts_S4x1x16_S4x16,
    unary main_v9637 main_v9638 (broadcastInDim S4x1x16 ![0, 2] bcast_S4x16_S4x1x16_0_2 : (⟨S4x16, .f32⟩ : BufTy).Contents (Elt F) → (⟨S4x1x16, .f32⟩ : BufTy).Contents (Elt F)),
    unary main_v9638 main_v9639 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9635 main_v9639 main_v9640 (mulf : (⟨S4x256x16, .f32⟩ : BufTy).Contents (Elt F) → (⟨S4x256x16, .f32⟩ : BufTy).Contents (Elt F) → (⟨S4x256x16, .f32⟩ : BufTy).Contents (Elt F)),
    nullary main_cst_962 (constant S_ .f32 0x00000000#32),
    binary main_v9640 main_cst_962 main_v9641 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_963 (constantI S_ 32 481#32),
    unary main_c_963 main_v9642 (broadcastInDim S1 ![] bcast_S_S1 : (⟨S_, .i32⟩ : BufTy).Contents (Elt F) → (⟨S1, .i32⟩ : BufTy).Contents (Elt F)),
    ternary main_v9623 main_v9642 main_v9641 main_v9643 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps481_ok : (stepOps481 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step481_val (V : Valuation τ sig (Elt Ideal)) :
    after (stepOps481 (F := Ideal)) V (no_index (Proc.devRef .tc main_v9635)) = stepH 481 (by decide) (V (Proc.devRef .tc main_arg0)) (V (Proc.devRef .tc main_v3)) (V (Proc.devRef .tc main_arg2)) (V (Proc.devRef .tc main_v9615))
    ∧ after (stepOps481 (F := Ideal)) V (no_index (Proc.devRef .tc main_v9643)) = stepY 481 (by decide) (V (Proc.devRef .tc main_arg3)) (stepH 481 (by decide) (V (Proc.devRef .tc main_arg0)) (V (Proc.devRef .tc main_v3)) (V (Proc.devRef .tc main_arg2)) (V (Proc.devRef .tc main_v9615))) (V (Proc.devRef .tc main_v9623)) := by
  simp only [stepOps481]
  after_results_simp
  first | exact ⟨rfl, rfl⟩ | fail "value"
/-- Step 482 of the loop: operations 10611 … 10632 of the program. -/
abbrev stepOps482 : List (HloOp τ sig (Elt F)) :=
  [ unary main_v3 main_v9644 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9635 main_v9644 main_v9645 (mulf : (⟨S4x256x16, .f32⟩ : BufTy).Contents (Elt F) → (⟨S4x256x16, .f32⟩ : BufTy).Contents (Elt F) → (⟨S4x256x16, .f32⟩ : BufTy).Contents (Elt F)),
    unary main_arg0 main_v9646 ((extractStridedSlice S4x1x256 ![0, 482, 0] · slices_S4x512x256_S4x1x256_0_482_0) : (⟨S4x512x256, .f32⟩ : BufTy).Contents (Elt F) → (⟨S4x1x256, .f32⟩ : BufTy).Contents (Elt F)),
    reshape main_v9646 main_v9647 rfl shapeCasts_S4x1x256_S4x256,
    unary main_v9647 main_v9648 (broadcastInDim S4x256x1 ![0, 1] bcast_S4x256_S4x256x1_0_1 : (⟨S4x256, .f32⟩ : BufTy).Contents (Elt F) → (⟨S4x256x1, .f32⟩ : BufTy).Contents (Elt F)),
    unary main_arg2 main_v9649 ((extractStridedSlice S4x1x16 ![0, 482, 0] · slices_S4x512x16_S4x1x16_0_482_0) : (⟨S4x512x16, .f32⟩ : BufTy).Contents (Elt F) → (⟨S4x1x16, .f32⟩ : BufTy).Contents (Elt F)),
    reshape main_v9649 main_v9650 rfl shapeCasts_S4x1x16_S4x16,
    unary main_v9650 main_v9651 (broadcastInDim S4x1x16 ![0, 2] bcast_S4x16_S4x1x16_0_2 : (⟨S4x16, .f32⟩ : BufTy).Contents (Elt F) → (⟨S4x1x16, .f32⟩ : BufTy).Contents (Elt F)),
    unary main_v9648 main_v9652 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9651 main_v9653 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9652 main_v9653 main_v9654 (mulf : (⟨S4x256x16, .f32⟩ : BufTy).Contents (Elt F) → (⟨S4x256x16, .f32⟩ : BufTy).Contents (Elt F) → (⟨S4x256x16, .f32⟩ : BufTy).Contents (Elt F)),
    binary main_v9645 main_v9654 main_v9655 (addf : (⟨S4x256x16, .f32⟩ : BufTy).Contents (Elt F) → (⟨S4x256x16, .f32⟩ : BufTy).Contents (Elt F) → (⟨S4x256x16, .f32⟩ : BufTy).Contents (Elt F)),
    unary main_arg3 main_v9656 ((extractStridedSlice S4x1x16 ![0, 482, 0] · slices_S4x512x16_S4x1x16_0_482_0) : (⟨S4x512x16, .f32⟩ : BufTy).Contents (Elt F) → (⟨S4x1x16, .f32⟩ : BufTy).Contents (Elt F)),
    reshape main_v9656 main_v9657 rfl shapeCasts_S4x1x16_S4x16,
    unary main_v9657 main_v9658 (broadcastInDim S4x1x16 ![0, 2] bcast_S4x16_S4x1x16_0_2 : (⟨S4x16, .f32⟩ : BufTy).Contents (Elt F) → (⟨S4x1x16, .f32⟩ : BufTy).Contents (Elt F)),
    unary main_v9658 main_v9659 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9655 main_v9659 main_v9660 (mulf : (⟨S4x256x16, .f32⟩ : BufTy).Contents (Elt F) → (⟨S4x256x16, .f32⟩ : BufTy).Contents (Elt F) → (⟨S4x256x16, .f32⟩ : BufTy).Contents (Elt F)),
    nullary main_cst_964 (constant S_ .f32 0x00000000#32),
    binary main_v9660 main_cst_964 main_v9661 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_965 (constantI S_ 32 482#32),
    unary main_c_965 main_v9662 (broadcastInDim S1 ![] bcast_S_S1 : (⟨S_, .i32⟩ : BufTy).Contents (Elt F) → (⟨S1, .i32⟩ : BufTy).Contents (Elt F)),
    ternary main_v9643 main_v9662 main_v9661 main_v9663 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps482_ok : (stepOps482 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step482_val (V : Valuation τ sig (Elt Ideal)) :
    after (stepOps482 (F := Ideal)) V (no_index (Proc.devRef .tc main_v9655)) = stepH 482 (by decide) (V (Proc.devRef .tc main_arg0)) (V (Proc.devRef .tc main_v3)) (V (Proc.devRef .tc main_arg2)) (V (Proc.devRef .tc main_v9635))
    ∧ after (stepOps482 (F := Ideal)) V (no_index (Proc.devRef .tc main_v9663)) = stepY 482 (by decide) (V (Proc.devRef .tc main_arg3)) (stepH 482 (by decide) (V (Proc.devRef .tc main_arg0)) (V (Proc.devRef .tc main_v3)) (V (Proc.devRef .tc main_arg2)) (V (Proc.devRef .tc main_v9635))) (V (Proc.devRef .tc main_v9643)) := by
  simp only [stepOps482]
  after_results_simp
  first | exact ⟨rfl, rfl⟩ | fail "value"
/-- Step 483 of the loop: operations 10633 … 10654 of the program. -/
abbrev stepOps483 : List (HloOp τ sig (Elt F)) :=
  [ unary main_v3 main_v9664 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9655 main_v9664 main_v9665 (mulf : (⟨S4x256x16, .f32⟩ : BufTy).Contents (Elt F) → (⟨S4x256x16, .f32⟩ : BufTy).Contents (Elt F) → (⟨S4x256x16, .f32⟩ : BufTy).Contents (Elt F)),
    unary main_arg0 main_v9666 ((extractStridedSlice S4x1x256 ![0, 483, 0] · slices_S4x512x256_S4x1x256_0_483_0) : (⟨S4x512x256, .f32⟩ : BufTy).Contents (Elt F) → (⟨S4x1x256, .f32⟩ : BufTy).Contents (Elt F)),
    reshape main_v9666 main_v9667 rfl shapeCasts_S4x1x256_S4x256,
    unary main_v9667 main_v9668 (broadcastInDim S4x256x1 ![0, 1] bcast_S4x256_S4x256x1_0_1 : (⟨S4x256, .f32⟩ : BufTy).Contents (Elt F) → (⟨S4x256x1, .f32⟩ : BufTy).Contents (Elt F)),
    unary main_arg2 main_v9669 ((extractStridedSlice S4x1x16 ![0, 483, 0] · slices_S4x512x16_S4x1x16_0_483_0) : (⟨S4x512x16, .f32⟩ : BufTy).Contents (Elt F) → (⟨S4x1x16, .f32⟩ : BufTy).Contents (Elt F)),
    reshape main_v9669 main_v9670 rfl shapeCasts_S4x1x16_S4x16,
    unary main_v9670 main_v9671 (broadcastInDim S4x1x16 ![0, 2] bcast_S4x16_S4x1x16_0_2 : (⟨S4x16, .f32⟩ : BufTy).Contents (Elt F) → (⟨S4x1x16, .f32⟩ : BufTy).Contents (Elt F)),
    unary main_v9668 main_v9672 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9671 main_v9673 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9672 main_v9673 main_v9674 (mulf : (⟨S4x256x16, .f32⟩ : BufTy).Contents (Elt F) → (⟨S4x256x16, .f32⟩ : BufTy).Contents (Elt F) → (⟨S4x256x16, .f32⟩ : BufTy).Contents (Elt F)),
    binary main_v9665 main_v9674 main_v9675 (addf : (⟨S4x256x16, .f32⟩ : BufTy).Contents (Elt F) → (⟨S4x256x16, .f32⟩ : BufTy).Contents (Elt F) → (⟨S4x256x16, .f32⟩ : BufTy).Contents (Elt F)),
    unary main_arg3 main_v9676 ((extractStridedSlice S4x1x16 ![0, 483, 0] · slices_S4x512x16_S4x1x16_0_483_0) : (⟨S4x512x16, .f32⟩ : BufTy).Contents (Elt F) → (⟨S4x1x16, .f32⟩ : BufTy).Contents (Elt F)),
    reshape main_v9676 main_v9677 rfl shapeCasts_S4x1x16_S4x16,
    unary main_v9677 main_v9678 (broadcastInDim S4x1x16 ![0, 2] bcast_S4x16_S4x1x16_0_2 : (⟨S4x16, .f32⟩ : BufTy).Contents (Elt F) → (⟨S4x1x16, .f32⟩ : BufTy).Contents (Elt F)),
    unary main_v9678 main_v9679 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9675 main_v9679 main_v9680 (mulf : (⟨S4x256x16, .f32⟩ : BufTy).Contents (Elt F) → (⟨S4x256x16, .f32⟩ : BufTy).Contents (Elt F) → (⟨S4x256x16, .f32⟩ : BufTy).Contents (Elt F)),
    nullary main_cst_966 (constant S_ .f32 0x00000000#32),
    binary main_v9680 main_cst_966 main_v9681 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_967 (constantI S_ 32 483#32),
    unary main_c_967 main_v9682 (broadcastInDim S1 ![] bcast_S_S1 : (⟨S_, .i32⟩ : BufTy).Contents (Elt F) → (⟨S1, .i32⟩ : BufTy).Contents (Elt F)),
    ternary main_v9663 main_v9682 main_v9681 main_v9683 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps483_ok : (stepOps483 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step483_val (V : Valuation τ sig (Elt Ideal)) :
    after (stepOps483 (F := Ideal)) V (no_index (Proc.devRef .tc main_v9675)) = stepH 483 (by decide) (V (Proc.devRef .tc main_arg0)) (V (Proc.devRef .tc main_v3)) (V (Proc.devRef .tc main_arg2)) (V (Proc.devRef .tc main_v9655))
    ∧ after (stepOps483 (F := Ideal)) V (no_index (Proc.devRef .tc main_v9683)) = stepY 483 (by decide) (V (Proc.devRef .tc main_arg3)) (stepH 483 (by decide) (V (Proc.devRef .tc main_arg0)) (V (Proc.devRef .tc main_v3)) (V (Proc.devRef .tc main_arg2)) (V (Proc.devRef .tc main_v9655))) (V (Proc.devRef .tc main_v9663)) := by
  simp only [stepOps483]
  after_results_simp
  first | exact ⟨rfl, rfl⟩ | fail "value"
/-- Step 484 of the loop: operations 10655 … 10676 of the program. -/
abbrev stepOps484 : List (HloOp τ sig (Elt F)) :=
  [ unary main_v3 main_v9684 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9675 main_v9684 main_v9685 (mulf : (⟨S4x256x16, .f32⟩ : BufTy).Contents (Elt F) → (⟨S4x256x16, .f32⟩ : BufTy).Contents (Elt F) → (⟨S4x256x16, .f32⟩ : BufTy).Contents (Elt F)),
    unary main_arg0 main_v9686 ((extractStridedSlice S4x1x256 ![0, 484, 0] · slices_S4x512x256_S4x1x256_0_484_0) : (⟨S4x512x256, .f32⟩ : BufTy).Contents (Elt F) → (⟨S4x1x256, .f32⟩ : BufTy).Contents (Elt F)),
    reshape main_v9686 main_v9687 rfl shapeCasts_S4x1x256_S4x256,
    unary main_v9687 main_v9688 (broadcastInDim S4x256x1 ![0, 1] bcast_S4x256_S4x256x1_0_1 : (⟨S4x256, .f32⟩ : BufTy).Contents (Elt F) → (⟨S4x256x1, .f32⟩ : BufTy).Contents (Elt F)),
    unary main_arg2 main_v9689 ((extractStridedSlice S4x1x16 ![0, 484, 0] · slices_S4x512x16_S4x1x16_0_484_0) : (⟨S4x512x16, .f32⟩ : BufTy).Contents (Elt F) → (⟨S4x1x16, .f32⟩ : BufTy).Contents (Elt F)),
    reshape main_v9689 main_v9690 rfl shapeCasts_S4x1x16_S4x16,
    unary main_v9690 main_v9691 (broadcastInDim S4x1x16 ![0, 2] bcast_S4x16_S4x1x16_0_2 : (⟨S4x16, .f32⟩ : BufTy).Contents (Elt F) → (⟨S4x1x16, .f32⟩ : BufTy).Contents (Elt F)),
    unary main_v9688 main_v9692 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9691 main_v9693 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9692 main_v9693 main_v9694 (mulf : (⟨S4x256x16, .f32⟩ : BufTy).Contents (Elt F) → (⟨S4x256x16, .f32⟩ : BufTy).Contents (Elt F) → (⟨S4x256x16, .f32⟩ : BufTy).Contents (Elt F)),
    binary main_v9685 main_v9694 main_v9695 (addf : (⟨S4x256x16, .f32⟩ : BufTy).Contents (Elt F) → (⟨S4x256x16, .f32⟩ : BufTy).Contents (Elt F) → (⟨S4x256x16, .f32⟩ : BufTy).Contents (Elt F)),
    unary main_arg3 main_v9696 ((extractStridedSlice S4x1x16 ![0, 484, 0] · slices_S4x512x16_S4x1x16_0_484_0) : (⟨S4x512x16, .f32⟩ : BufTy).Contents (Elt F) → (⟨S4x1x16, .f32⟩ : BufTy).Contents (Elt F)),
    reshape main_v9696 main_v9697 rfl shapeCasts_S4x1x16_S4x16,
    unary main_v9697 main_v9698 (broadcastInDim S4x1x16 ![0, 2] bcast_S4x16_S4x1x16_0_2 : (⟨S4x16, .f32⟩ : BufTy).Contents (Elt F) → (⟨S4x1x16, .f32⟩ : BufTy).Contents (Elt F)),
    unary main_v9698 main_v9699 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9695 main_v9699 main_v9700 (mulf : (⟨S4x256x16, .f32⟩ : BufTy).Contents (Elt F) → (⟨S4x256x16, .f32⟩ : BufTy).Contents (Elt F) → (⟨S4x256x16, .f32⟩ : BufTy).Contents (Elt F)),
    nullary main_cst_968 (constant S_ .f32 0x00000000#32),
    binary main_v9700 main_cst_968 main_v9701 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_969 (constantI S_ 32 484#32),
    unary main_c_969 main_v9702 (broadcastInDim S1 ![] bcast_S_S1 : (⟨S_, .i32⟩ : BufTy).Contents (Elt F) → (⟨S1, .i32⟩ : BufTy).Contents (Elt F)),
    ternary main_v9683 main_v9702 main_v9701 main_v9703 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps484_ok : (stepOps484 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step484_val (V : Valuation τ sig (Elt Ideal)) :
    after (stepOps484 (F := Ideal)) V (no_index (Proc.devRef .tc main_v9695)) = stepH 484 (by decide) (V (Proc.devRef .tc main_arg0)) (V (Proc.devRef .tc main_v3)) (V (Proc.devRef .tc main_arg2)) (V (Proc.devRef .tc main_v9675))
    ∧ after (stepOps484 (F := Ideal)) V (no_index (Proc.devRef .tc main_v9703)) = stepY 484 (by decide) (V (Proc.devRef .tc main_arg3)) (stepH 484 (by decide) (V (Proc.devRef .tc main_arg0)) (V (Proc.devRef .tc main_v3)) (V (Proc.devRef .tc main_arg2)) (V (Proc.devRef .tc main_v9675))) (V (Proc.devRef .tc main_v9683)) := by
  simp only [stepOps484]
  after_results_simp
  first | exact ⟨rfl, rfl⟩ | fail "value"
/-- Step 485 of the loop: operations 10677 … 10698 of the program. -/
abbrev stepOps485 : List (HloOp τ sig (Elt F)) :=
  [ unary main_v3 main_v9704 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9695 main_v9704 main_v9705 (mulf : (⟨S4x256x16, .f32⟩ : BufTy).Contents (Elt F) → (⟨S4x256x16, .f32⟩ : BufTy).Contents (Elt F) → (⟨S4x256x16, .f32⟩ : BufTy).Contents (Elt F)),
    unary main_arg0 main_v9706 ((extractStridedSlice S4x1x256 ![0, 485, 0] · slices_S4x512x256_S4x1x256_0_485_0) : (⟨S4x512x256, .f32⟩ : BufTy).Contents (Elt F) → (⟨S4x1x256, .f32⟩ : BufTy).Contents (Elt F)),
    reshape main_v9706 main_v9707 rfl shapeCasts_S4x1x256_S4x256,
    unary main_v9707 main_v9708 (broadcastInDim S4x256x1 ![0, 1] bcast_S4x256_S4x256x1_0_1 : (⟨S4x256, .f32⟩ : BufTy).Contents (Elt F) → (⟨S4x256x1, .f32⟩ : BufTy).Contents (Elt F)),
    unary main_arg2 main_v9709 ((extractStridedSlice S4x1x16 ![0, 485, 0] · slices_S4x512x16_S4x1x16_0_485_0) : (⟨S4x512x16, .f32⟩ : BufTy).Contents (Elt F) → (⟨S4x1x16, .f32⟩ : BufTy).Contents (Elt F)),
    reshape main_v9709 main_v9710 rfl shapeCasts_S4x1x16_S4x16,
    unary main_v9710 main_v9711 (broadcastInDim S4x1x16 ![0, 2] bcast_S4x16_S4x1x16_0_2 : (⟨S4x16, .f32⟩ : BufTy).Contents (Elt F) → (⟨S4x1x16, .f32⟩ : BufTy).Contents (Elt F)),
    unary main_v9708 main_v9712 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9711 main_v9713 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9712 main_v9713 main_v9714 (mulf : (⟨S4x256x16, .f32⟩ : BufTy).Contents (Elt F) → (⟨S4x256x16, .f32⟩ : BufTy).Contents (Elt F) → (⟨S4x256x16, .f32⟩ : BufTy).Contents (Elt F)),
    binary main_v9705 main_v9714 main_v9715 (addf : (⟨S4x256x16, .f32⟩ : BufTy).Contents (Elt F) → (⟨S4x256x16, .f32⟩ : BufTy).Contents (Elt F) → (⟨S4x256x16, .f32⟩ : BufTy).Contents (Elt F)),
    unary main_arg3 main_v9716 ((extractStridedSlice S4x1x16 ![0, 485, 0] · slices_S4x512x16_S4x1x16_0_485_0) : (⟨S4x512x16, .f32⟩ : BufTy).Contents (Elt F) → (⟨S4x1x16, .f32⟩ : BufTy).Contents (Elt F)),
    reshape main_v9716 main_v9717 rfl shapeCasts_S4x1x16_S4x16,
    unary main_v9717 main_v9718 (broadcastInDim S4x1x16 ![0, 2] bcast_S4x16_S4x1x16_0_2 : (⟨S4x16, .f32⟩ : BufTy).Contents (Elt F) → (⟨S4x1x16, .f32⟩ : BufTy).Contents (Elt F)),
    unary main_v9718 main_v9719 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9715 main_v9719 main_v9720 (mulf : (⟨S4x256x16, .f32⟩ : BufTy).Contents (Elt F) → (⟨S4x256x16, .f32⟩ : BufTy).Contents (Elt F) → (⟨S4x256x16, .f32⟩ : BufTy).Contents (Elt F)),
    nullary main_cst_970 (constant S_ .f32 0x00000000#32),
    binary main_v9720 main_cst_970 main_v9721 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_971 (constantI S_ 32 485#32),
    unary main_c_971 main_v9722 (broadcastInDim S1 ![] bcast_S_S1 : (⟨S_, .i32⟩ : BufTy).Contents (Elt F) → (⟨S1, .i32⟩ : BufTy).Contents (Elt F)),
    ternary main_v9703 main_v9722 main_v9721 main_v9723 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps485_ok : (stepOps485 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step485_val (V : Valuation τ sig (Elt Ideal)) :
    after (stepOps485 (F := Ideal)) V (no_index (Proc.devRef .tc main_v9715)) = stepH 485 (by decide) (V (Proc.devRef .tc main_arg0)) (V (Proc.devRef .tc main_v3)) (V (Proc.devRef .tc main_arg2)) (V (Proc.devRef .tc main_v9695))
    ∧ after (stepOps485 (F := Ideal)) V (no_index (Proc.devRef .tc main_v9723)) = stepY 485 (by decide) (V (Proc.devRef .tc main_arg3)) (stepH 485 (by decide) (V (Proc.devRef .tc main_arg0)) (V (Proc.devRef .tc main_v3)) (V (Proc.devRef .tc main_arg2)) (V (Proc.devRef .tc main_v9695))) (V (Proc.devRef .tc main_v9703)) := by
  simp only [stepOps485]
  after_results_simp
  first | exact ⟨rfl, rfl⟩ | fail "value"
/-- Step 486 of the loop: operations 10699 … 10720 of the program. -/
abbrev stepOps486 : List (HloOp τ sig (Elt F)) :=
  [ unary main_v3 main_v9724 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9715 main_v9724 main_v9725 (mulf : (⟨S4x256x16, .f32⟩ : BufTy).Contents (Elt F) → (⟨S4x256x16, .f32⟩ : BufTy).Contents (Elt F) → (⟨S4x256x16, .f32⟩ : BufTy).Contents (Elt F)),
    unary main_arg0 main_v9726 ((extractStridedSlice S4x1x256 ![0, 486, 0] · slices_S4x512x256_S4x1x256_0_486_0) : (⟨S4x512x256, .f32⟩ : BufTy).Contents (Elt F) → (⟨S4x1x256, .f32⟩ : BufTy).Contents (Elt F)),
    reshape main_v9726 main_v9727 rfl shapeCasts_S4x1x256_S4x256,
    unary main_v9727 main_v9728 (broadcastInDim S4x256x1 ![0, 1] bcast_S4x256_S4x256x1_0_1 : (⟨S4x256, .f32⟩ : BufTy).Contents (Elt F) → (⟨S4x256x1, .f32⟩ : BufTy).Contents (Elt F)),
    unary main_arg2 main_v9729 ((extractStridedSlice S4x1x16 ![0, 486, 0] · slices_S4x512x16_S4x1x16_0_486_0) : (⟨S4x512x16, .f32⟩ : BufTy).Contents (Elt F) → (⟨S4x1x16, .f32⟩ : BufTy).Contents (Elt F)),
    reshape main_v9729 main_v9730 rfl shapeCasts_S4x1x16_S4x16,
    unary main_v9730 main_v9731 (broadcastInDim S4x1x16 ![0, 2] bcast_S4x16_S4x1x16_0_2 : (⟨S4x16, .f32⟩ : BufTy).Contents (Elt F) → (⟨S4x1x16, .f32⟩ : BufTy).Contents (Elt F)),
    unary main_v9728 main_v9732 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9731 main_v9733 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9732 main_v9733 main_v9734 (mulf : (⟨S4x256x16, .f32⟩ : BufTy).Contents (Elt F) → (⟨S4x256x16, .f32⟩ : BufTy).Contents (Elt F) → (⟨S4x256x16, .f32⟩ : BufTy).Contents (Elt F)),
    binary main_v9725 main_v9734 main_v9735 (addf : (⟨S4x256x16, .f32⟩ : BufTy).Contents (Elt F) → (⟨S4x256x16, .f32⟩ : BufTy).Contents (Elt F) → (⟨S4x256x16, .f32⟩ : BufTy).Contents (Elt F)),
    unary main_arg3 main_v9736 ((extractStridedSlice S4x1x16 ![0, 486, 0] · slices_S4x512x16_S4x1x16_0_486_0) : (⟨S4x512x16, .f32⟩ : BufTy).Contents (Elt F) → (⟨S4x1x16, .f32⟩ : BufTy).Contents (Elt F)),
    reshape main_v9736 main_v9737 rfl shapeCasts_S4x1x16_S4x16,
    unary main_v9737 main_v9738 (broadcastInDim S4x1x16 ![0, 2] bcast_S4x16_S4x1x16_0_2 : (⟨S4x16, .f32⟩ : BufTy).Contents (Elt F) → (⟨S4x1x16, .f32⟩ : BufTy).Contents (Elt F)),
    unary main_v9738 main_v9739 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9735 main_v9739 main_v9740 (mulf : (⟨S4x256x16, .f32⟩ : BufTy).Contents (Elt F) → (⟨S4x256x16, .f32⟩ : BufTy).Contents (Elt F) → (⟨S4x256x16, .f32⟩ : BufTy).Contents (Elt F)),
    nullary main_cst_972 (constant S_ .f32 0x00000000#32),
    binary main_v9740 main_cst_972 main_v9741 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_973 (constantI S_ 32 486#32),
    unary main_c_973 main_v9742 (broadcastInDim S1 ![] bcast_S_S1 : (⟨S_, .i32⟩ : BufTy).Contents (Elt F) → (⟨S1, .i32⟩ : BufTy).Contents (Elt F)),
    ternary main_v9723 main_v9742 main_v9741 main_v9743 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps486_ok : (stepOps486 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step486_val (V : Valuation τ sig (Elt Ideal)) :
    after (stepOps486 (F := Ideal)) V (no_index (Proc.devRef .tc main_v9735)) = stepH 486 (by decide) (V (Proc.devRef .tc main_arg0)) (V (Proc.devRef .tc main_v3)) (V (Proc.devRef .tc main_arg2)) (V (Proc.devRef .tc main_v9715))
    ∧ after (stepOps486 (F := Ideal)) V (no_index (Proc.devRef .tc main_v9743)) = stepY 486 (by decide) (V (Proc.devRef .tc main_arg3)) (stepH 486 (by decide) (V (Proc.devRef .tc main_arg0)) (V (Proc.devRef .tc main_v3)) (V (Proc.devRef .tc main_arg2)) (V (Proc.devRef .tc main_v9715))) (V (Proc.devRef .tc main_v9723)) := by
  simp only [stepOps486]
  after_results_simp
  first | exact ⟨rfl, rfl⟩ | fail "value"
/-- Step 487 of the loop: operations 10721 … 10742 of the program. -/
abbrev stepOps487 : List (HloOp τ sig (Elt F)) :=
  [ unary main_v3 main_v9744 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9735 main_v9744 main_v9745 (mulf : (⟨S4x256x16, .f32⟩ : BufTy).Contents (Elt F) → (⟨S4x256x16, .f32⟩ : BufTy).Contents (Elt F) → (⟨S4x256x16, .f32⟩ : BufTy).Contents (Elt F)),
    unary main_arg0 main_v9746 ((extractStridedSlice S4x1x256 ![0, 487, 0] · slices_S4x512x256_S4x1x256_0_487_0) : (⟨S4x512x256, .f32⟩ : BufTy).Contents (Elt F) → (⟨S4x1x256, .f32⟩ : BufTy).Contents (Elt F)),
    reshape main_v9746 main_v9747 rfl shapeCasts_S4x1x256_S4x256,
    unary main_v9747 main_v9748 (broadcastInDim S4x256x1 ![0, 1] bcast_S4x256_S4x256x1_0_1 : (⟨S4x256, .f32⟩ : BufTy).Contents (Elt F) → (⟨S4x256x1, .f32⟩ : BufTy).Contents (Elt F)),
    unary main_arg2 main_v9749 ((extractStridedSlice S4x1x16 ![0, 487, 0] · slices_S4x512x16_S4x1x16_0_487_0) : (⟨S4x512x16, .f32⟩ : BufTy).Contents (Elt F) → (⟨S4x1x16, .f32⟩ : BufTy).Contents (Elt F)),
    reshape main_v9749 main_v9750 rfl shapeCasts_S4x1x16_S4x16,
    unary main_v9750 main_v9751 (broadcastInDim S4x1x16 ![0, 2] bcast_S4x16_S4x1x16_0_2 : (⟨S4x16, .f32⟩ : BufTy).Contents (Elt F) → (⟨S4x1x16, .f32⟩ : BufTy).Contents (Elt F)),
    unary main_v9748 main_v9752 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9751 main_v9753 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9752 main_v9753 main_v9754 (mulf : (⟨S4x256x16, .f32⟩ : BufTy).Contents (Elt F) → (⟨S4x256x16, .f32⟩ : BufTy).Contents (Elt F) → (⟨S4x256x16, .f32⟩ : BufTy).Contents (Elt F)),
    binary main_v9745 main_v9754 main_v9755 (addf : (⟨S4x256x16, .f32⟩ : BufTy).Contents (Elt F) → (⟨S4x256x16, .f32⟩ : BufTy).Contents (Elt F) → (⟨S4x256x16, .f32⟩ : BufTy).Contents (Elt F)),
    unary main_arg3 main_v9756 ((extractStridedSlice S4x1x16 ![0, 487, 0] · slices_S4x512x16_S4x1x16_0_487_0) : (⟨S4x512x16, .f32⟩ : BufTy).Contents (Elt F) → (⟨S4x1x16, .f32⟩ : BufTy).Contents (Elt F)),
    reshape main_v9756 main_v9757 rfl shapeCasts_S4x1x16_S4x16,
    unary main_v9757 main_v9758 (broadcastInDim S4x1x16 ![0, 2] bcast_S4x16_S4x1x16_0_2 : (⟨S4x16, .f32⟩ : BufTy).Contents (Elt F) → (⟨S4x1x16, .f32⟩ : BufTy).Contents (Elt F)),
    unary main_v9758 main_v9759 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9755 main_v9759 main_v9760 (mulf : (⟨S4x256x16, .f32⟩ : BufTy).Contents (Elt F) → (⟨S4x256x16, .f32⟩ : BufTy).Contents (Elt F) → (⟨S4x256x16, .f32⟩ : BufTy).Contents (Elt F)),
    nullary main_cst_974 (constant S_ .f32 0x00000000#32),
    binary main_v9760 main_cst_974 main_v9761 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_975 (constantI S_ 32 487#32),
    unary main_c_975 main_v9762 (broadcastInDim S1 ![] bcast_S_S1 : (⟨S_, .i32⟩ : BufTy).Contents (Elt F) → (⟨S1, .i32⟩ : BufTy).Contents (Elt F)),
    ternary main_v9743 main_v9762 main_v9761 main_v9763 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps487_ok : (stepOps487 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step487_val (V : Valuation τ sig (Elt Ideal)) :
    after (stepOps487 (F := Ideal)) V (no_index (Proc.devRef .tc main_v9755)) = stepH 487 (by decide) (V (Proc.devRef .tc main_arg0)) (V (Proc.devRef .tc main_v3)) (V (Proc.devRef .tc main_arg2)) (V (Proc.devRef .tc main_v9735))
    ∧ after (stepOps487 (F := Ideal)) V (no_index (Proc.devRef .tc main_v9763)) = stepY 487 (by decide) (V (Proc.devRef .tc main_arg3)) (stepH 487 (by decide) (V (Proc.devRef .tc main_arg0)) (V (Proc.devRef .tc main_v3)) (V (Proc.devRef .tc main_arg2)) (V (Proc.devRef .tc main_v9735))) (V (Proc.devRef .tc main_v9743)) := by
  simp only [stepOps487]
  after_results_simp
  first | exact ⟨rfl, rfl⟩ | fail "value"
/-- Step 488 of the loop: operations 10743 … 10764 of the program. -/
abbrev stepOps488 : List (HloOp τ sig (Elt F)) :=
  [ unary main_v3 main_v9764 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9755 main_v9764 main_v9765 (mulf : (⟨S4x256x16, .f32⟩ : BufTy).Contents (Elt F) → (⟨S4x256x16, .f32⟩ : BufTy).Contents (Elt F) → (⟨S4x256x16, .f32⟩ : BufTy).Contents (Elt F)),
    unary main_arg0 main_v9766 ((extractStridedSlice S4x1x256 ![0, 488, 0] · slices_S4x512x256_S4x1x256_0_488_0) : (⟨S4x512x256, .f32⟩ : BufTy).Contents (Elt F) → (⟨S4x1x256, .f32⟩ : BufTy).Contents (Elt F)),
    reshape main_v9766 main_v9767 rfl shapeCasts_S4x1x256_S4x256,
    unary main_v9767 main_v9768 (broadcastInDim S4x256x1 ![0, 1] bcast_S4x256_S4x256x1_0_1 : (⟨S4x256, .f32⟩ : BufTy).Contents (Elt F) → (⟨S4x256x1, .f32⟩ : BufTy).Contents (Elt F)),
    unary main_arg2 main_v9769 ((extractStridedSlice S4x1x16 ![0, 488, 0] · slices_S4x512x16_S4x1x16_0_488_0) : (⟨S4x512x16, .f32⟩ : BufTy).Contents (Elt F) → (⟨S4x1x16, .f32⟩ : BufTy).Contents (Elt F)),
    reshape main_v9769 main_v9770 rfl shapeCasts_S4x1x16_S4x16,
    unary main_v9770 main_v9771 (broadcastInDim S4x1x16 ![0, 2] bcast_S4x16_S4x1x16_0_2 : (⟨S4x16, .f32⟩ : BufTy).Contents (Elt F) → (⟨S4x1x16, .f32⟩ : BufTy).Contents (Elt F)),
    unary main_v9768 main_v9772 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9771 main_v9773 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9772 main_v9773 main_v9774 (mulf : (⟨S4x256x16, .f32⟩ : BufTy).Contents (Elt F) → (⟨S4x256x16, .f32⟩ : BufTy).Contents (Elt F) → (⟨S4x256x16, .f32⟩ : BufTy).Contents (Elt F)),
    binary main_v9765 main_v9774 main_v9775 (addf : (⟨S4x256x16, .f32⟩ : BufTy).Contents (Elt F) → (⟨S4x256x16, .f32⟩ : BufTy).Contents (Elt F) → (⟨S4x256x16, .f32⟩ : BufTy).Contents (Elt F)),
    unary main_arg3 main_v9776 ((extractStridedSlice S4x1x16 ![0, 488, 0] · slices_S4x512x16_S4x1x16_0_488_0) : (⟨S4x512x16, .f32⟩ : BufTy).Contents (Elt F) → (⟨S4x1x16, .f32⟩ : BufTy).Contents (Elt F)),
    reshape main_v9776 main_v9777 rfl shapeCasts_S4x1x16_S4x16,
    unary main_v9777 main_v9778 (broadcastInDim S4x1x16 ![0, 2] bcast_S4x16_S4x1x16_0_2 : (⟨S4x16, .f32⟩ : BufTy).Contents (Elt F) → (⟨S4x1x16, .f32⟩ : BufTy).Contents (Elt F)),
    unary main_v9778 main_v9779 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9775 main_v9779 main_v9780 (mulf : (⟨S4x256x16, .f32⟩ : BufTy).Contents (Elt F) → (⟨S4x256x16, .f32⟩ : BufTy).Contents (Elt F) → (⟨S4x256x16, .f32⟩ : BufTy).Contents (Elt F)),
    nullary main_cst_976 (constant S_ .f32 0x00000000#32),
    binary main_v9780 main_cst_976 main_v9781 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_977 (constantI S_ 32 488#32),
    unary main_c_977 main_v9782 (broadcastInDim S1 ![] bcast_S_S1 : (⟨S_, .i32⟩ : BufTy).Contents (Elt F) → (⟨S1, .i32⟩ : BufTy).Contents (Elt F)),
    ternary main_v9763 main_v9782 main_v9781 main_v9783 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps488_ok : (stepOps488 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step488_val (V : Valuation τ sig (Elt Ideal)) :
    after (stepOps488 (F := Ideal)) V (no_index (Proc.devRef .tc main_v9775)) = stepH 488 (by decide) (V (Proc.devRef .tc main_arg0)) (V (Proc.devRef .tc main_v3)) (V (Proc.devRef .tc main_arg2)) (V (Proc.devRef .tc main_v9755))
    ∧ after (stepOps488 (F := Ideal)) V (no_index (Proc.devRef .tc main_v9783)) = stepY 488 (by decide) (V (Proc.devRef .tc main_arg3)) (stepH 488 (by decide) (V (Proc.devRef .tc main_arg0)) (V (Proc.devRef .tc main_v3)) (V (Proc.devRef .tc main_arg2)) (V (Proc.devRef .tc main_v9755))) (V (Proc.devRef .tc main_v9763)) := by
  simp only [stepOps488]
  after_results_simp
  first | exact ⟨rfl, rfl⟩ | fail "value"
/-- Step 489 of the loop: operations 10765 … 10786 of the program. -/
abbrev stepOps489 : List (HloOp τ sig (Elt F)) :=
  [ unary main_v3 main_v9784 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9775 main_v9784 main_v9785 (mulf : (⟨S4x256x16, .f32⟩ : BufTy).Contents (Elt F) → (⟨S4x256x16, .f32⟩ : BufTy).Contents (Elt F) → (⟨S4x256x16, .f32⟩ : BufTy).Contents (Elt F)),
    unary main_arg0 main_v9786 ((extractStridedSlice S4x1x256 ![0, 489, 0] · slices_S4x512x256_S4x1x256_0_489_0) : (⟨S4x512x256, .f32⟩ : BufTy).Contents (Elt F) → (⟨S4x1x256, .f32⟩ : BufTy).Contents (Elt F)),
    reshape main_v9786 main_v9787 rfl shapeCasts_S4x1x256_S4x256,
    unary main_v9787 main_v9788 (broadcastInDim S4x256x1 ![0, 1] bcast_S4x256_S4x256x1_0_1 : (⟨S4x256, .f32⟩ : BufTy).Contents (Elt F) → (⟨S4x256x1, .f32⟩ : BufTy).Contents (Elt F)),
    unary main_arg2 main_v9789 ((extractStridedSlice S4x1x16 ![0, 489, 0] · slices_S4x512x16_S4x1x16_0_489_0) : (⟨S4x512x16, .f32⟩ : BufTy).Contents (Elt F) → (⟨S4x1x16, .f32⟩ : BufTy).Contents (Elt F)),
    reshape main_v9789 main_v9790 rfl shapeCasts_S4x1x16_S4x16,
    unary main_v9790 main_v9791 (broadcastInDim S4x1x16 ![0, 2] bcast_S4x16_S4x1x16_0_2 : (⟨S4x16, .f32⟩ : BufTy).Contents (Elt F) → (⟨S4x1x16, .f32⟩ : BufTy).Contents (Elt F)),
    unary main_v9788 main_v9792 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9791 main_v9793 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9792 main_v9793 main_v9794 (mulf : (⟨S4x256x16, .f32⟩ : BufTy).Contents (Elt F) → (⟨S4x256x16, .f32⟩ : BufTy).Contents (Elt F) → (⟨S4x256x16, .f32⟩ : BufTy).Contents (Elt F)),
    binary main_v9785 main_v9794 main_v9795 (addf : (⟨S4x256x16, .f32⟩ : BufTy).Contents (Elt F) → (⟨S4x256x16, .f32⟩ : BufTy).Contents (Elt F) → (⟨S4x256x16, .f32⟩ : BufTy).Contents (Elt F)),
    unary main_arg3 main_v9796 ((extractStridedSlice S4x1x16 ![0, 489, 0] · slices_S4x512x16_S4x1x16_0_489_0) : (⟨S4x512x16, .f32⟩ : BufTy).Contents (Elt F) → (⟨S4x1x16, .f32⟩ : BufTy).Contents (Elt F)),
    reshape main_v9796 main_v9797 rfl shapeCasts_S4x1x16_S4x16,
    unary main_v9797 main_v9798 (broadcastInDim S4x1x16 ![0, 2] bcast_S4x16_S4x1x16_0_2 : (⟨S4x16, .f32⟩ : BufTy).Contents (Elt F) → (⟨S4x1x16, .f32⟩ : BufTy).Contents (Elt F)),
    unary main_v9798 main_v9799 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9795 main_v9799 main_v9800 (mulf : (⟨S4x256x16, .f32⟩ : BufTy).Contents (Elt F) → (⟨S4x256x16, .f32⟩ : BufTy).Contents (Elt F) → (⟨S4x256x16, .f32⟩ : BufTy).Contents (Elt F)),
    nullary main_cst_978 (constant S_ .f32 0x00000000#32),
    binary main_v9800 main_cst_978 main_v9801 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_979 (constantI S_ 32 489#32),
    unary main_c_979 main_v9802 (broadcastInDim S1 ![] bcast_S_S1 : (⟨S_, .i32⟩ : BufTy).Contents (Elt F) → (⟨S1, .i32⟩ : BufTy).Contents (Elt F)),
    ternary main_v9783 main_v9802 main_v9801 main_v9803 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps489_ok : (stepOps489 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step489_val (V : Valuation τ sig (Elt Ideal)) :
    after (stepOps489 (F := Ideal)) V (no_index (Proc.devRef .tc main_v9795)) = stepH 489 (by decide) (V (Proc.devRef .tc main_arg0)) (V (Proc.devRef .tc main_v3)) (V (Proc.devRef .tc main_arg2)) (V (Proc.devRef .tc main_v9775))
    ∧ after (stepOps489 (F := Ideal)) V (no_index (Proc.devRef .tc main_v9803)) = stepY 489 (by decide) (V (Proc.devRef .tc main_arg3)) (stepH 489 (by decide) (V (Proc.devRef .tc main_arg0)) (V (Proc.devRef .tc main_v3)) (V (Proc.devRef .tc main_arg2)) (V (Proc.devRef .tc main_v9775))) (V (Proc.devRef .tc main_v9783)) := by
  simp only [stepOps489]
  after_results_simp
  first | exact ⟨rfl, rfl⟩ | fail "value"
/-- Step 490 of the loop: operations 10787 … 10808 of the program. -/
abbrev stepOps490 : List (HloOp τ sig (Elt F)) :=
  [ unary main_v3 main_v9804 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9795 main_v9804 main_v9805 (mulf : (⟨S4x256x16, .f32⟩ : BufTy).Contents (Elt F) → (⟨S4x256x16, .f32⟩ : BufTy).Contents (Elt F) → (⟨S4x256x16, .f32⟩ : BufTy).Contents (Elt F)),
    unary main_arg0 main_v9806 ((extractStridedSlice S4x1x256 ![0, 490, 0] · slices_S4x512x256_S4x1x256_0_490_0) : (⟨S4x512x256, .f32⟩ : BufTy).Contents (Elt F) → (⟨S4x1x256, .f32⟩ : BufTy).Contents (Elt F)),
    reshape main_v9806 main_v9807 rfl shapeCasts_S4x1x256_S4x256,
    unary main_v9807 main_v9808 (broadcastInDim S4x256x1 ![0, 1] bcast_S4x256_S4x256x1_0_1 : (⟨S4x256, .f32⟩ : BufTy).Contents (Elt F) → (⟨S4x256x1, .f32⟩ : BufTy).Contents (Elt F)),
    unary main_arg2 main_v9809 ((extractStridedSlice S4x1x16 ![0, 490, 0] · slices_S4x512x16_S4x1x16_0_490_0) : (⟨S4x512x16, .f32⟩ : BufTy).Contents (Elt F) → (⟨S4x1x16, .f32⟩ : BufTy).Contents (Elt F)),
    reshape main_v9809 main_v9810 rfl shapeCasts_S4x1x16_S4x16,
    unary main_v9810 main_v9811 (broadcastInDim S4x1x16 ![0, 2] bcast_S4x16_S4x1x16_0_2 : (⟨S4x16, .f32⟩ : BufTy).Contents (Elt F) → (⟨S4x1x16, .f32⟩ : BufTy).Contents (Elt F)),
    unary main_v9808 main_v9812 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9811 main_v9813 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9812 main_v9813 main_v9814 (mulf : (⟨S4x256x16, .f32⟩ : BufTy).Contents (Elt F) → (⟨S4x256x16, .f32⟩ : BufTy).Contents (Elt F) → (⟨S4x256x16, .f32⟩ : BufTy).Contents (Elt F)),
    binary main_v9805 main_v9814 main_v9815 (addf : (⟨S4x256x16, .f32⟩ : BufTy).Contents (Elt F) → (⟨S4x256x16, .f32⟩ : BufTy).Contents (Elt F) → (⟨S4x256x16, .f32⟩ : BufTy).Contents (Elt F)),
    unary main_arg3 main_v9816 ((extractStridedSlice S4x1x16 ![0, 490, 0] · slices_S4x512x16_S4x1x16_0_490_0) : (⟨S4x512x16, .f32⟩ : BufTy).Contents (Elt F) → (⟨S4x1x16, .f32⟩ : BufTy).Contents (Elt F)),
    reshape main_v9816 main_v9817 rfl shapeCasts_S4x1x16_S4x16,
    unary main_v9817 main_v9818 (broadcastInDim S4x1x16 ![0, 2] bcast_S4x16_S4x1x16_0_2 : (⟨S4x16, .f32⟩ : BufTy).Contents (Elt F) → (⟨S4x1x16, .f32⟩ : BufTy).Contents (Elt F)),
    unary main_v9818 main_v9819 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9815 main_v9819 main_v9820 (mulf : (⟨S4x256x16, .f32⟩ : BufTy).Contents (Elt F) → (⟨S4x256x16, .f32⟩ : BufTy).Contents (Elt F) → (⟨S4x256x16, .f32⟩ : BufTy).Contents (Elt F)),
    nullary main_cst_980 (constant S_ .f32 0x00000000#32),
    binary main_v9820 main_cst_980 main_v9821 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_981 (constantI S_ 32 490#32),
    unary main_c_981 main_v9822 (broadcastInDim S1 ![] bcast_S_S1 : (⟨S_, .i32⟩ : BufTy).Contents (Elt F) → (⟨S1, .i32⟩ : BufTy).Contents (Elt F)),
    ternary main_v9803 main_v9822 main_v9821 main_v9823 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps490_ok : (stepOps490 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step490_val (V : Valuation τ sig (Elt Ideal)) :
    after (stepOps490 (F := Ideal)) V (no_index (Proc.devRef .tc main_v9815)) = stepH 490 (by decide) (V (Proc.devRef .tc main_arg0)) (V (Proc.devRef .tc main_v3)) (V (Proc.devRef .tc main_arg2)) (V (Proc.devRef .tc main_v9795))
    ∧ after (stepOps490 (F := Ideal)) V (no_index (Proc.devRef .tc main_v9823)) = stepY 490 (by decide) (V (Proc.devRef .tc main_arg3)) (stepH 490 (by decide) (V (Proc.devRef .tc main_arg0)) (V (Proc.devRef .tc main_v3)) (V (Proc.devRef .tc main_arg2)) (V (Proc.devRef .tc main_v9795))) (V (Proc.devRef .tc main_v9803)) := by
  simp only [stepOps490]
  after_results_simp
  first | exact ⟨rfl, rfl⟩ | fail "value"
/-- Step 491 of the loop: operations 10809 … 10830 of the program. -/
abbrev stepOps491 : List (HloOp τ sig (Elt F)) :=
  [ unary main_v3 main_v9824 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9815 main_v9824 main_v9825 (mulf : (⟨S4x256x16, .f32⟩ : BufTy).Contents (Elt F) → (⟨S4x256x16, .f32⟩ : BufTy).Contents (Elt F) → (⟨S4x256x16, .f32⟩ : BufTy).Contents (Elt F)),
    unary main_arg0 main_v9826 ((extractStridedSlice S4x1x256 ![0, 491, 0] · slices_S4x512x256_S4x1x256_0_491_0) : (⟨S4x512x256, .f32⟩ : BufTy).Contents (Elt F) → (⟨S4x1x256, .f32⟩ : BufTy).Contents (Elt F)),
    reshape main_v9826 main_v9827 rfl shapeCasts_S4x1x256_S4x256,
    unary main_v9827 main_v9828 (broadcastInDim S4x256x1 ![0, 1] bcast_S4x256_S4x256x1_0_1 : (⟨S4x256, .f32⟩ : BufTy).Contents (Elt F) → (⟨S4x256x1, .f32⟩ : BufTy).Contents (Elt F)),
    unary main_arg2 main_v9829 ((extractStridedSlice S4x1x16 ![0, 491, 0] · slices_S4x512x16_S4x1x16_0_491_0) : (⟨S4x512x16, .f32⟩ : BufTy).Contents (Elt F) → (⟨S4x1x16, .f32⟩ : BufTy).Contents (Elt F)),
    reshape main_v9829 main_v9830 rfl shapeCasts_S4x1x16_S4x16,
    unary main_v9830 main_v9831 (broadcastInDim S4x1x16 ![0, 2] bcast_S4x16_S4x1x16_0_2 : (⟨S4x16, .f32⟩ : BufTy).Contents (Elt F) → (⟨S4x1x16, .f32⟩ : BufTy).Contents (Elt F)),
    unary main_v9828 main_v9832 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9831 main_v9833 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9832 main_v9833 main_v9834 (mulf : (⟨S4x256x16, .f32⟩ : BufTy).Contents (Elt F) → (⟨S4x256x16, .f32⟩ : BufTy).Contents (Elt F) → (⟨S4x256x16, .f32⟩ : BufTy).Contents (Elt F)),
    binary main_v9825 main_v9834 main_v9835 (addf : (⟨S4x256x16, .f32⟩ : BufTy).Contents (Elt F) → (⟨S4x256x16, .f32⟩ : BufTy).Contents (Elt F) → (⟨S4x256x16, .f32⟩ : BufTy).Contents (Elt F)),
    unary main_arg3 main_v9836 ((extractStridedSlice S4x1x16 ![0, 491, 0] · slices_S4x512x16_S4x1x16_0_491_0) : (⟨S4x512x16, .f32⟩ : BufTy).Contents (Elt F) → (⟨S4x1x16, .f32⟩ : BufTy).Contents (Elt F)),
    reshape main_v9836 main_v9837 rfl shapeCasts_S4x1x16_S4x16,
    unary main_v9837 main_v9838 (broadcastInDim S4x1x16 ![0, 2] bcast_S4x16_S4x1x16_0_2 : (⟨S4x16, .f32⟩ : BufTy).Contents (Elt F) → (⟨S4x1x16, .f32⟩ : BufTy).Contents (Elt F)),
    unary main_v9838 main_v9839 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9835 main_v9839 main_v9840 (mulf : (⟨S4x256x16, .f32⟩ : BufTy).Contents (Elt F) → (⟨S4x256x16, .f32⟩ : BufTy).Contents (Elt F) → (⟨S4x256x16, .f32⟩ : BufTy).Contents (Elt F)),
    nullary main_cst_982 (constant S_ .f32 0x00000000#32),
    binary main_v9840 main_cst_982 main_v9841 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_983 (constantI S_ 32 491#32),
    unary main_c_983 main_v9842 (broadcastInDim S1 ![] bcast_S_S1 : (⟨S_, .i32⟩ : BufTy).Contents (Elt F) → (⟨S1, .i32⟩ : BufTy).Contents (Elt F)),
    ternary main_v9823 main_v9842 main_v9841 main_v9843 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps491_ok : (stepOps491 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step491_val (V : Valuation τ sig (Elt Ideal)) :
    after (stepOps491 (F := Ideal)) V (no_index (Proc.devRef .tc main_v9835)) = stepH 491 (by decide) (V (Proc.devRef .tc main_arg0)) (V (Proc.devRef .tc main_v3)) (V (Proc.devRef .tc main_arg2)) (V (Proc.devRef .tc main_v9815))
    ∧ after (stepOps491 (F := Ideal)) V (no_index (Proc.devRef .tc main_v9843)) = stepY 491 (by decide) (V (Proc.devRef .tc main_arg3)) (stepH 491 (by decide) (V (Proc.devRef .tc main_arg0)) (V (Proc.devRef .tc main_v3)) (V (Proc.devRef .tc main_arg2)) (V (Proc.devRef .tc main_v9815))) (V (Proc.devRef .tc main_v9823)) := by
  simp only [stepOps491]
  after_results_simp
  first | exact ⟨rfl, rfl⟩ | fail "value"
/-- Step 492 of the loop: operations 10831 … 10852 of the program. -/
abbrev stepOps492 : List (HloOp τ sig (Elt F)) :=
  [ unary main_v3 main_v9844 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9835 main_v9844 main_v9845 (mulf : (⟨S4x256x16, .f32⟩ : BufTy).Contents (Elt F) → (⟨S4x256x16, .f32⟩ : BufTy).Contents (Elt F) → (⟨S4x256x16, .f32⟩ : BufTy).Contents (Elt F)),
    unary main_arg0 main_v9846 ((extractStridedSlice S4x1x256 ![0, 492, 0] · slices_S4x512x256_S4x1x256_0_492_0) : (⟨S4x512x256, .f32⟩ : BufTy).Contents (Elt F) → (⟨S4x1x256, .f32⟩ : BufTy).Contents (Elt F)),
    reshape main_v9846 main_v9847 rfl shapeCasts_S4x1x256_S4x256,
    unary main_v9847 main_v9848 (broadcastInDim S4x256x1 ![0, 1] bcast_S4x256_S4x256x1_0_1 : (⟨S4x256, .f32⟩ : BufTy).Contents (Elt F) → (⟨S4x256x1, .f32⟩ : BufTy).Contents (Elt F)),
    unary main_arg2 main_v9849 ((extractStridedSlice S4x1x16 ![0, 492, 0] · slices_S4x512x16_S4x1x16_0_492_0) : (⟨S4x512x16, .f32⟩ : BufTy).Contents (Elt F) → (⟨S4x1x16, .f32⟩ : BufTy).Contents (Elt F)),
    reshape main_v9849 main_v9850 rfl shapeCasts_S4x1x16_S4x16,
    unary main_v9850 main_v9851 (broadcastInDim S4x1x16 ![0, 2] bcast_S4x16_S4x1x16_0_2 : (⟨S4x16, .f32⟩ : BufTy).Contents (Elt F) → (⟨S4x1x16, .f32⟩ : BufTy).Contents (Elt F)),
    unary main_v9848 main_v9852 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9851 main_v9853 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9852 main_v9853 main_v9854 (mulf : (⟨S4x256x16, .f32⟩ : BufTy).Contents (Elt F) → (⟨S4x256x16, .f32⟩ : BufTy).Contents (Elt F) → (⟨S4x256x16, .f32⟩ : BufTy).Contents (Elt F)),
    binary main_v9845 main_v9854 main_v9855 (addf : (⟨S4x256x16, .f32⟩ : BufTy).Contents (Elt F) → (⟨S4x256x16, .f32⟩ : BufTy).Contents (Elt F) → (⟨S4x256x16, .f32⟩ : BufTy).Contents (Elt F)),
    unary main_arg3 main_v9856 ((extractStridedSlice S4x1x16 ![0, 492, 0] · slices_S4x512x16_S4x1x16_0_492_0) : (⟨S4x512x16, .f32⟩ : BufTy).Contents (Elt F) → (⟨S4x1x16, .f32⟩ : BufTy).Contents (Elt F)),
    reshape main_v9856 main_v9857 rfl shapeCasts_S4x1x16_S4x16,
    unary main_v9857 main_v9858 (broadcastInDim S4x1x16 ![0, 2] bcast_S4x16_S4x1x16_0_2 : (⟨S4x16, .f32⟩ : BufTy).Contents (Elt F) → (⟨S4x1x16, .f32⟩ : BufTy).Contents (Elt F)),
    unary main_v9858 main_v9859 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9855 main_v9859 main_v9860 (mulf : (⟨S4x256x16, .f32⟩ : BufTy).Contents (Elt F) → (⟨S4x256x16, .f32⟩ : BufTy).Contents (Elt F) → (⟨S4x256x16, .f32⟩ : BufTy).Contents (Elt F)),
    nullary main_cst_984 (constant S_ .f32 0x00000000#32),
    binary main_v9860 main_cst_984 main_v9861 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_985 (constantI S_ 32 492#32),
    unary main_c_985 main_v9862 (broadcastInDim S1 ![] bcast_S_S1 : (⟨S_, .i32⟩ : BufTy).Contents (Elt F) → (⟨S1, .i32⟩ : BufTy).Contents (Elt F)),
    ternary main_v9843 main_v9862 main_v9861 main_v9863 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps492_ok : (stepOps492 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step492_val (V : Valuation τ sig (Elt Ideal)) :
    after (stepOps492 (F := Ideal)) V (no_index (Proc.devRef .tc main_v9855)) = stepH 492 (by decide) (V (Proc.devRef .tc main_arg0)) (V (Proc.devRef .tc main_v3)) (V (Proc.devRef .tc main_arg2)) (V (Proc.devRef .tc main_v9835))
    ∧ after (stepOps492 (F := Ideal)) V (no_index (Proc.devRef .tc main_v9863)) = stepY 492 (by decide) (V (Proc.devRef .tc main_arg3)) (stepH 492 (by decide) (V (Proc.devRef .tc main_arg0)) (V (Proc.devRef .tc main_v3)) (V (Proc.devRef .tc main_arg2)) (V (Proc.devRef .tc main_v9835))) (V (Proc.devRef .tc main_v9843)) := by
  simp only [stepOps492]
  after_results_simp
  first | exact ⟨rfl, rfl⟩ | fail "value"
/-- Step 493 of the loop: operations 10853 … 10874 of the program. -/
abbrev stepOps493 : List (HloOp τ sig (Elt F)) :=
  [ unary main_v3 main_v9864 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9855 main_v9864 main_v9865 (mulf : (⟨S4x256x16, .f32⟩ : BufTy).Contents (Elt F) → (⟨S4x256x16, .f32⟩ : BufTy).Contents (Elt F) → (⟨S4x256x16, .f32⟩ : BufTy).Contents (Elt F)),
    unary main_arg0 main_v9866 ((extractStridedSlice S4x1x256 ![0, 493, 0] · slices_S4x512x256_S4x1x256_0_493_0) : (⟨S4x512x256, .f32⟩ : BufTy).Contents (Elt F) → (⟨S4x1x256, .f32⟩ : BufTy).Contents (Elt F)),
    reshape main_v9866 main_v9867 rfl shapeCasts_S4x1x256_S4x256,
    unary main_v9867 main_v9868 (broadcastInDim S4x256x1 ![0, 1] bcast_S4x256_S4x256x1_0_1 : (⟨S4x256, .f32⟩ : BufTy).Contents (Elt F) → (⟨S4x256x1, .f32⟩ : BufTy).Contents (Elt F)),
    unary main_arg2 main_v9869 ((extractStridedSlice S4x1x16 ![0, 493, 0] · slices_S4x512x16_S4x1x16_0_493_0) : (⟨S4x512x16, .f32⟩ : BufTy).Contents (Elt F) → (⟨S4x1x16, .f32⟩ : BufTy).Contents (Elt F)),
    reshape main_v9869 main_v9870 rfl shapeCasts_S4x1x16_S4x16,
    unary main_v9870 main_v9871 (broadcastInDim S4x1x16 ![0, 2] bcast_S4x16_S4x1x16_0_2 : (⟨S4x16, .f32⟩ : BufTy).Contents (Elt F) → (⟨S4x1x16, .f32⟩ : BufTy).Contents (Elt F)),
    unary main_v9868 main_v9872 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9871 main_v9873 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9872 main_v9873 main_v9874 (mulf : (⟨S4x256x16, .f32⟩ : BufTy).Contents (Elt F) → (⟨S4x256x16, .f32⟩ : BufTy).Contents (Elt F) → (⟨S4x256x16, .f32⟩ : BufTy).Contents (Elt F)),
    binary main_v9865 main_v9874 main_v9875 (addf : (⟨S4x256x16, .f32⟩ : BufTy).Contents (Elt F) → (⟨S4x256x16, .f32⟩ : BufTy).Contents (Elt F) → (⟨S4x256x16, .f32⟩ : BufTy).Contents (Elt F)),
    unary main_arg3 main_v9876 ((extractStridedSlice S4x1x16 ![0, 493, 0] · slices_S4x512x16_S4x1x16_0_493_0) : (⟨S4x512x16, .f32⟩ : BufTy).Contents (Elt F) → (⟨S4x1x16, .f32⟩ : BufTy).Contents (Elt F)),
    reshape main_v9876 main_v9877 rfl shapeCasts_S4x1x16_S4x16,
    unary main_v9877 main_v9878 (broadcastInDim S4x1x16 ![0, 2] bcast_S4x16_S4x1x16_0_2 : (⟨S4x16, .f32⟩ : BufTy).Contents (Elt F) → (⟨S4x1x16, .f32⟩ : BufTy).Contents (Elt F)),
    unary main_v9878 main_v9879 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9875 main_v9879 main_v9880 (mulf : (⟨S4x256x16, .f32⟩ : BufTy).Contents (Elt F) → (⟨S4x256x16, .f32⟩ : BufTy).Contents (Elt F) → (⟨S4x256x16, .f32⟩ : BufTy).Contents (Elt F)),
    nullary main_cst_986 (constant S_ .f32 0x00000000#32),
    binary main_v9880 main_cst_986 main_v9881 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_987 (constantI S_ 32 493#32),
    unary main_c_987 main_v9882 (broadcastInDim S1 ![] bcast_S_S1 : (⟨S_, .i32⟩ : BufTy).Contents (Elt F) → (⟨S1, .i32⟩ : BufTy).Contents (Elt F)),
    ternary main_v9863 main_v9882 main_v9881 main_v9883 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps493_ok : (stepOps493 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step493_val (V : Valuation τ sig (Elt Ideal)) :
    after (stepOps493 (F := Ideal)) V (no_index (Proc.devRef .tc main_v9875)) = stepH 493 (by decide) (V (Proc.devRef .tc main_arg0)) (V (Proc.devRef .tc main_v3)) (V (Proc.devRef .tc main_arg2)) (V (Proc.devRef .tc main_v9855))
    ∧ after (stepOps493 (F := Ideal)) V (no_index (Proc.devRef .tc main_v9883)) = stepY 493 (by decide) (V (Proc.devRef .tc main_arg3)) (stepH 493 (by decide) (V (Proc.devRef .tc main_arg0)) (V (Proc.devRef .tc main_v3)) (V (Proc.devRef .tc main_arg2)) (V (Proc.devRef .tc main_v9855))) (V (Proc.devRef .tc main_v9863)) := by
  simp only [stepOps493]
  after_results_simp
  first | exact ⟨rfl, rfl⟩ | fail "value"
/-- Step 494 of the loop: operations 10875 … 10896 of the program. -/
abbrev stepOps494 : List (HloOp τ sig (Elt F)) :=
  [ unary main_v3 main_v9884 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9875 main_v9884 main_v9885 (mulf : (⟨S4x256x16, .f32⟩ : BufTy).Contents (Elt F) → (⟨S4x256x16, .f32⟩ : BufTy).Contents (Elt F) → (⟨S4x256x16, .f32⟩ : BufTy).Contents (Elt F)),
    unary main_arg0 main_v9886 ((extractStridedSlice S4x1x256 ![0, 494, 0] · slices_S4x512x256_S4x1x256_0_494_0) : (⟨S4x512x256, .f32⟩ : BufTy).Contents (Elt F) → (⟨S4x1x256, .f32⟩ : BufTy).Contents (Elt F)),
    reshape main_v9886 main_v9887 rfl shapeCasts_S4x1x256_S4x256,
    unary main_v9887 main_v9888 (broadcastInDim S4x256x1 ![0, 1] bcast_S4x256_S4x256x1_0_1 : (⟨S4x256, .f32⟩ : BufTy).Contents (Elt F) → (⟨S4x256x1, .f32⟩ : BufTy).Contents (Elt F)),
    unary main_arg2 main_v9889 ((extractStridedSlice S4x1x16 ![0, 494, 0] · slices_S4x512x16_S4x1x16_0_494_0) : (⟨S4x512x16, .f32⟩ : BufTy).Contents (Elt F) → (⟨S4x1x16, .f32⟩ : BufTy).Contents (Elt F)),
    reshape main_v9889 main_v9890 rfl shapeCasts_S4x1x16_S4x16,
    unary main_v9890 main_v9891 (broadcastInDim S4x1x16 ![0, 2] bcast_S4x16_S4x1x16_0_2 : (⟨S4x16, .f32⟩ : BufTy).Contents (Elt F) → (⟨S4x1x16, .f32⟩ : BufTy).Contents (Elt F)),
    unary main_v9888 main_v9892 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9891 main_v9893 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9892 main_v9893 main_v9894 (mulf : (⟨S4x256x16, .f32⟩ : BufTy).Contents (Elt F) → (⟨S4x256x16, .f32⟩ : BufTy).Contents (Elt F) → (⟨S4x256x16, .f32⟩ : BufTy).Contents (Elt F)),
    binary main_v9885 main_v9894 main_v9895 (addf : (⟨S4x256x16, .f32⟩ : BufTy).Contents (Elt F) → (⟨S4x256x16, .f32⟩ : BufTy).Contents (Elt F) → (⟨S4x256x16, .f32⟩ : BufTy).Contents (Elt F)),
    unary main_arg3 main_v9896 ((extractStridedSlice S4x1x16 ![0, 494, 0] · slices_S4x512x16_S4x1x16_0_494_0) : (⟨S4x512x16, .f32⟩ : BufTy).Contents (Elt F) → (⟨S4x1x16, .f32⟩ : BufTy).Contents (Elt F)),
    reshape main_v9896 main_v9897 rfl shapeCasts_S4x1x16_S4x16,
    unary main_v9897 main_v9898 (broadcastInDim S4x1x16 ![0, 2] bcast_S4x16_S4x1x16_0_2 : (⟨S4x16, .f32⟩ : BufTy).Contents (Elt F) → (⟨S4x1x16, .f32⟩ : BufTy).Contents (Elt F)),
    unary main_v9898 main_v9899 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9895 main_v9899 main_v9900 (mulf : (⟨S4x256x16, .f32⟩ : BufTy).Contents (Elt F) → (⟨S4x256x16, .f32⟩ : BufTy).Contents (Elt F) → (⟨S4x256x16, .f32⟩ : BufTy).Contents (Elt F)),
    nullary main_cst_988 (constant S_ .f32 0x00000000#32),
    binary main_v9900 main_cst_988 main_v9901 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_989 (constantI S_ 32 494#32),
    unary main_c_989 main_v9902 (broadcastInDim S1 ![] bcast_S_S1 : (⟨S_, .i32⟩ : BufTy).Contents (Elt F) → (⟨S1, .i32⟩ : BufTy).Contents (Elt F)),
    ternary main_v9883 main_v9902 main_v9901 main_v9903 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps494_ok : (stepOps494 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step494_val (V : Valuation τ sig (Elt Ideal)) :
    after (stepOps494 (F := Ideal)) V (no_index (Proc.devRef .tc main_v9895)) = stepH 494 (by decide) (V (Proc.devRef .tc main_arg0)) (V (Proc.devRef .tc main_v3)) (V (Proc.devRef .tc main_arg2)) (V (Proc.devRef .tc main_v9875))
    ∧ after (stepOps494 (F := Ideal)) V (no_index (Proc.devRef .tc main_v9903)) = stepY 494 (by decide) (V (Proc.devRef .tc main_arg3)) (stepH 494 (by decide) (V (Proc.devRef .tc main_arg0)) (V (Proc.devRef .tc main_v3)) (V (Proc.devRef .tc main_arg2)) (V (Proc.devRef .tc main_v9875))) (V (Proc.devRef .tc main_v9883)) := by
  simp only [stepOps494]
  after_results_simp
  first | exact ⟨rfl, rfl⟩ | fail "value"
/-- Step 495 of the loop: operations 10897 … 10918 of the program. -/
abbrev stepOps495 : List (HloOp τ sig (Elt F)) :=
  [ unary main_v3 main_v9904 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9895 main_v9904 main_v9905 (mulf : (⟨S4x256x16, .f32⟩ : BufTy).Contents (Elt F) → (⟨S4x256x16, .f32⟩ : BufTy).Contents (Elt F) → (⟨S4x256x16, .f32⟩ : BufTy).Contents (Elt F)),
    unary main_arg0 main_v9906 ((extractStridedSlice S4x1x256 ![0, 495, 0] · slices_S4x512x256_S4x1x256_0_495_0) : (⟨S4x512x256, .f32⟩ : BufTy).Contents (Elt F) → (⟨S4x1x256, .f32⟩ : BufTy).Contents (Elt F)),
    reshape main_v9906 main_v9907 rfl shapeCasts_S4x1x256_S4x256,
    unary main_v9907 main_v9908 (broadcastInDim S4x256x1 ![0, 1] bcast_S4x256_S4x256x1_0_1 : (⟨S4x256, .f32⟩ : BufTy).Contents (Elt F) → (⟨S4x256x1, .f32⟩ : BufTy).Contents (Elt F)),
    unary main_arg2 main_v9909 ((extractStridedSlice S4x1x16 ![0, 495, 0] · slices_S4x512x16_S4x1x16_0_495_0) : (⟨S4x512x16, .f32⟩ : BufTy).Contents (Elt F) → (⟨S4x1x16, .f32⟩ : BufTy).Contents (Elt F)),
    reshape main_v9909 main_v9910 rfl shapeCasts_S4x1x16_S4x16,
    unary main_v9910 main_v9911 (broadcastInDim S4x1x16 ![0, 2] bcast_S4x16_S4x1x16_0_2 : (⟨S4x16, .f32⟩ : BufTy).Contents (Elt F) → (⟨S4x1x16, .f32⟩ : BufTy).Contents (Elt F)),
    unary main_v9908 main_v9912 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9911 main_v9913 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9912 main_v9913 main_v9914 (mulf : (⟨S4x256x16, .f32⟩ : BufTy).Contents (Elt F) → (⟨S4x256x16, .f32⟩ : BufTy).Contents (Elt F) → (⟨S4x256x16, .f32⟩ : BufTy).Contents (Elt F)),
    binary main_v9905 main_v9914 main_v9915 (addf : (⟨S4x256x16, .f32⟩ : BufTy).Contents (Elt F) → (⟨S4x256x16, .f32⟩ : BufTy).Contents (Elt F) → (⟨S4x256x16, .f32⟩ : BufTy).Contents (Elt F)),
    unary main_arg3 main_v9916 ((extractStridedSlice S4x1x16 ![0, 495, 0] · slices_S4x512x16_S4x1x16_0_495_0) : (⟨S4x512x16, .f32⟩ : BufTy).Contents (Elt F) → (⟨S4x1x16, .f32⟩ : BufTy).Contents (Elt F)),
    reshape main_v9916 main_v9917 rfl shapeCasts_S4x1x16_S4x16,
    unary main_v9917 main_v9918 (broadcastInDim S4x1x16 ![0, 2] bcast_S4x16_S4x1x16_0_2 : (⟨S4x16, .f32⟩ : BufTy).Contents (Elt F) → (⟨S4x1x16, .f32⟩ : BufTy).Contents (Elt F)),
    unary main_v9918 main_v9919 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9915 main_v9919 main_v9920 (mulf : (⟨S4x256x16, .f32⟩ : BufTy).Contents (Elt F) → (⟨S4x256x16, .f32⟩ : BufTy).Contents (Elt F) → (⟨S4x256x16, .f32⟩ : BufTy).Contents (Elt F)),
    nullary main_cst_990 (constant S_ .f32 0x00000000#32),
    binary main_v9920 main_cst_990 main_v9921 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_991 (constantI S_ 32 495#32),
    unary main_c_991 main_v9922 (broadcastInDim S1 ![] bcast_S_S1 : (⟨S_, .i32⟩ : BufTy).Contents (Elt F) → (⟨S1, .i32⟩ : BufTy).Contents (Elt F)),
    ternary main_v9903 main_v9922 main_v9921 main_v9923 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps495_ok : (stepOps495 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step495_val (V : Valuation τ sig (Elt Ideal)) :
    after (stepOps495 (F := Ideal)) V (no_index (Proc.devRef .tc main_v9915)) = stepH 495 (by decide) (V (Proc.devRef .tc main_arg0)) (V (Proc.devRef .tc main_v3)) (V (Proc.devRef .tc main_arg2)) (V (Proc.devRef .tc main_v9895))
    ∧ after (stepOps495 (F := Ideal)) V (no_index (Proc.devRef .tc main_v9923)) = stepY 495 (by decide) (V (Proc.devRef .tc main_arg3)) (stepH 495 (by decide) (V (Proc.devRef .tc main_arg0)) (V (Proc.devRef .tc main_v3)) (V (Proc.devRef .tc main_arg2)) (V (Proc.devRef .tc main_v9895))) (V (Proc.devRef .tc main_v9903)) := by
  simp only [stepOps495]
  after_results_simp
  first | exact ⟨rfl, rfl⟩ | fail "value"

end Cert.ReferenceIdeal.RefRun

end
-- ==== Proof.RefTableStep31.lean ====
/-
  Steps 496 … 511 of the reference's loop: each step's 22 operations as a list, what every operation of the list
  satisfies, and what the list computes on the two buffers the loop carries: the step function of the time.
-/
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.RefRunLib
import proofs.«900482_g7700000000000483_dist_ssm_v7x_xy2x2_y_b4_s256_d256_n16_f32_1_alg».proof.Proof.RefValueStep

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue (stepH stepY)

variable {F : FTy → Type} [FloatOps F]

/-- Step 496 of the loop: operations 10919 … 10940 of the program. -/
abbrev stepOps496 : List (HloOp τ sig (Elt F)) :=
  [ unary main_v3 main_v9924 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9915 main_v9924 main_v9925 (mulf : (⟨S4x256x16, .f32⟩ : BufTy).Contents (Elt F) → (⟨S4x256x16, .f32⟩ : BufTy).Contents (Elt F) → (⟨S4x256x16, .f32⟩ : BufTy).Contents (Elt F)),
    unary main_arg0 main_v9926 ((extractStridedSlice S4x1x256 ![0, 496, 0] · slices_S4x512x256_S4x1x256_0_496_0) : (⟨S4x512x256, .f32⟩ : BufTy).Contents (Elt F) → (⟨S4x1x256, .f32⟩ : BufTy).Contents (Elt F)),
    reshape main_v9926 main_v9927 rfl shapeCasts_S4x1x256_S4x256,
    unary main_v9927 main_v9928 (broadcastInDim S4x256x1 ![0, 1] bcast_S4x256_S4x256x1_0_1 : (⟨S4x256, .f32⟩ : BufTy).Contents (Elt F) → (⟨S4x256x1, .f32⟩ : BufTy).Contents (Elt F)),
    unary main_arg2 main_v9929 ((extractStridedSlice S4x1x16 ![0, 496, 0] · slices_S4x512x16_S4x1x16_0_496_0) : (⟨S4x512x16, .f32⟩ : BufTy).Contents (Elt F) → (⟨S4x1x16, .f32⟩ : BufTy).Contents (Elt F)),
    reshape main_v9929 main_v9930 rfl shapeCasts_S4x1x16_S4x16,
    unary main_v9930 main_v9931 (broadcastInDim S4x1x16 ![0, 2] bcast_S4x16_S4x1x16_0_2 : (⟨S4x16, .f32⟩ : BufTy).Contents (Elt F) → (⟨S4x1x16, .f32⟩ : BufTy).Contents (Elt F)),
    unary main_v9928 main_v9932 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9931 main_v9933 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9932 main_v9933 main_v9934 (mulf : (⟨S4x256x16, .f32⟩ : BufTy).Contents (Elt F) → (⟨S4x256x16, .f32⟩ : BufTy).Contents (Elt F) → (⟨S4x256x16, .f32⟩ : BufTy).Contents (Elt F)),
    binary main_v9925 main_v9934 main_v9935 (addf : (⟨S4x256x16, .f32⟩ : BufTy).Contents (Elt F) → (⟨S4x256x16, .f32⟩ : BufTy).Contents (Elt F) → (⟨S4x256x16, .f32⟩ : BufTy).Contents (Elt F)),
    unary main_arg3 main_v9936 ((extractStridedSlice S4x1x16 ![0, 496, 0] · slices_S4x512x16_S4x1x16_0_496_0) : (⟨S4x512x16, .f32⟩ : BufTy).Contents (Elt F) → (⟨S4x1x16, .f32⟩ : BufTy).Contents (Elt F)),
    reshape main_v9936 main_v9937 rfl shapeCasts_S4x1x16_S4x16,
    unary main_v9937 main_v9938 (broadcastInDim S4x1x16 ![0, 2] bcast_S4x16_S4x1x16_0_2 : (⟨S4x16, .f32⟩ : BufTy).Contents (Elt F) → (⟨S4x1x16, .f32⟩ : BufTy).Contents (Elt F)),
    unary main_v9938 main_v9939 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9935 main_v9939 main_v9940 (mulf : (⟨S4x256x16, .f32⟩ : BufTy).Contents (Elt F) → (⟨S4x256x16, .f32⟩ : BufTy).Contents (Elt F) → (⟨S4x256x16, .f32⟩ : BufTy).Contents (Elt F)),
    nullary main_cst_992 (constant S_ .f32 0x00000000#32),
    binary main_v9940 main_cst_992 main_v9941 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_993 (constantI S_ 32 496#32),
    unary main_c_993 main_v9942 (broadcastInDim S1 ![] bcast_S_S1 : (⟨S_, .i32⟩ : BufTy).Contents (Elt F) → (⟨S1, .i32⟩ : BufTy).Contents (Elt F)),
    ternary main_v9923 main_v9942 main_v9941 main_v9943 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps496_ok : (stepOps496 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step496_val (V : Valuation τ sig (Elt Ideal)) :
    after (stepOps496 (F := Ideal)) V (no_index (Proc.devRef .tc main_v9935)) = stepH 496 (by decide) (V (Proc.devRef .tc main_arg0)) (V (Proc.devRef .tc main_v3)) (V (Proc.devRef .tc main_arg2)) (V (Proc.devRef .tc main_v9915))
    ∧ after (stepOps496 (F := Ideal)) V (no_index (Proc.devRef .tc main_v9943)) = stepY 496 (by decide) (V (Proc.devRef .tc main_arg3)) (stepH 496 (by decide) (V (Proc.devRef .tc main_arg0)) (V (Proc.devRef .tc main_v3)) (V (Proc.devRef .tc main_arg2)) (V (Proc.devRef .tc main_v9915))) (V (Proc.devRef .tc main_v9923)) := by
  simp only [stepOps496]
  after_results_simp
  first | exact ⟨rfl, rfl⟩ | fail "value"
/-- Step 497 of the loop: operations 10941 … 10962 of the program. -/
abbrev stepOps497 : List (HloOp τ sig (Elt F)) :=
  [ unary main_v3 main_v9944 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9935 main_v9944 main_v9945 (mulf : (⟨S4x256x16, .f32⟩ : BufTy).Contents (Elt F) → (⟨S4x256x16, .f32⟩ : BufTy).Contents (Elt F) → (⟨S4x256x16, .f32⟩ : BufTy).Contents (Elt F)),
    unary main_arg0 main_v9946 ((extractStridedSlice S4x1x256 ![0, 497, 0] · slices_S4x512x256_S4x1x256_0_497_0) : (⟨S4x512x256, .f32⟩ : BufTy).Contents (Elt F) → (⟨S4x1x256, .f32⟩ : BufTy).Contents (Elt F)),
    reshape main_v9946 main_v9947 rfl shapeCasts_S4x1x256_S4x256,
    unary main_v9947 main_v9948 (broadcastInDim S4x256x1 ![0, 1] bcast_S4x256_S4x256x1_0_1 : (⟨S4x256, .f32⟩ : BufTy).Contents (Elt F) → (⟨S4x256x1, .f32⟩ : BufTy).Contents (Elt F)),
    unary main_arg2 main_v9949 ((extractStridedSlice S4x1x16 ![0, 497, 0] · slices_S4x512x16_S4x1x16_0_497_0) : (⟨S4x512x16, .f32⟩ : BufTy).Contents (Elt F) → (⟨S4x1x16, .f32⟩ : BufTy).Contents (Elt F)),
    reshape main_v9949 main_v9950 rfl shapeCasts_S4x1x16_S4x16,
    unary main_v9950 main_v9951 (broadcastInDim S4x1x16 ![0, 2] bcast_S4x16_S4x1x16_0_2 : (⟨S4x16, .f32⟩ : BufTy).Contents (Elt F) → (⟨S4x1x16, .f32⟩ : BufTy).Contents (Elt F)),
    unary main_v9948 main_v9952 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9951 main_v9953 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9952 main_v9953 main_v9954 (mulf : (⟨S4x256x16, .f32⟩ : BufTy).Contents (Elt F) → (⟨S4x256x16, .f32⟩ : BufTy).Contents (Elt F) → (⟨S4x256x16, .f32⟩ : BufTy).Contents (Elt F)),
    binary main_v9945 main_v9954 main_v9955 (addf : (⟨S4x256x16, .f32⟩ : BufTy).Contents (Elt F) → (⟨S4x256x16, .f32⟩ : BufTy).Contents (Elt F) → (⟨S4x256x16, .f32⟩ : BufTy).Contents (Elt F)),
    unary main_arg3 main_v9956 ((extractStridedSlice S4x1x16 ![0, 497, 0] · slices_S4x512x16_S4x1x16_0_497_0) : (⟨S4x512x16, .f32⟩ : BufTy).Contents (Elt F) → (⟨S4x1x16, .f32⟩ : BufTy).Contents (Elt F)),
    reshape main_v9956 main_v9957 rfl shapeCasts_S4x1x16_S4x16,
    unary main_v9957 main_v9958 (broadcastInDim S4x1x16 ![0, 2] bcast_S4x16_S4x1x16_0_2 : (⟨S4x16, .f32⟩ : BufTy).Contents (Elt F) → (⟨S4x1x16, .f32⟩ : BufTy).Contents (Elt F)),
    unary main_v9958 main_v9959 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9955 main_v9959 main_v9960 (mulf : (⟨S4x256x16, .f32⟩ : BufTy).Contents (Elt F) → (⟨S4x256x16, .f32⟩ : BufTy).Contents (Elt F) → (⟨S4x256x16, .f32⟩ : BufTy).Contents (Elt F)),
    nullary main_cst_994 (constant S_ .f32 0x00000000#32),
    binary main_v9960 main_cst_994 main_v9961 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_995 (constantI S_ 32 497#32),
    unary main_c_995 main_v9962 (broadcastInDim S1 ![] bcast_S_S1 : (⟨S_, .i32⟩ : BufTy).Contents (Elt F) → (⟨S1, .i32⟩ : BufTy).Contents (Elt F)),
    ternary main_v9943 main_v9962 main_v9961 main_v9963 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps497_ok : (stepOps497 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step497_val (V : Valuation τ sig (Elt Ideal)) :
    after (stepOps497 (F := Ideal)) V (no_index (Proc.devRef .tc main_v9955)) = stepH 497 (by decide) (V (Proc.devRef .tc main_arg0)) (V (Proc.devRef .tc main_v3)) (V (Proc.devRef .tc main_arg2)) (V (Proc.devRef .tc main_v9935))
    ∧ after (stepOps497 (F := Ideal)) V (no_index (Proc.devRef .tc main_v9963)) = stepY 497 (by decide) (V (Proc.devRef .tc main_arg3)) (stepH 497 (by decide) (V (Proc.devRef .tc main_arg0)) (V (Proc.devRef .tc main_v3)) (V (Proc.devRef .tc main_arg2)) (V (Proc.devRef .tc main_v9935))) (V (Proc.devRef .tc main_v9943)) := by
  simp only [stepOps497]
  after_results_simp
  first | exact ⟨rfl, rfl⟩ | fail "value"
/-- Step 498 of the loop: operations 10963 … 10984 of the program. -/
abbrev stepOps498 : List (HloOp τ sig (Elt F)) :=
  [ unary main_v3 main_v9964 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9955 main_v9964 main_v9965 (mulf : (⟨S4x256x16, .f32⟩ : BufTy).Contents (Elt F) → (⟨S4x256x16, .f32⟩ : BufTy).Contents (Elt F) → (⟨S4x256x16, .f32⟩ : BufTy).Contents (Elt F)),
    unary main_arg0 main_v9966 ((extractStridedSlice S4x1x256 ![0, 498, 0] · slices_S4x512x256_S4x1x256_0_498_0) : (⟨S4x512x256, .f32⟩ : BufTy).Contents (Elt F) → (⟨S4x1x256, .f32⟩ : BufTy).Contents (Elt F)),
    reshape main_v9966 main_v9967 rfl shapeCasts_S4x1x256_S4x256,
    unary main_v9967 main_v9968 (broadcastInDim S4x256x1 ![0, 1] bcast_S4x256_S4x256x1_0_1 : (⟨S4x256, .f32⟩ : BufTy).Contents (Elt F) → (⟨S4x256x1, .f32⟩ : BufTy).Contents (Elt F)),
    unary main_arg2 main_v9969 ((extractStridedSlice S4x1x16 ![0, 498, 0] · slices_S4x512x16_S4x1x16_0_498_0) : (⟨S4x512x16, .f32⟩ : BufTy).Contents (Elt F) → (⟨S4x1x16, .f32⟩ : BufTy).Contents (Elt F)),
    reshape main_v9969 main_v9970 rfl shapeCasts_S4x1x16_S4x16,
    unary main_v9970 main_v9971 (broadcastInDim S4x1x16 ![0, 2] bcast_S4x16_S4x1x16_0_2 : (⟨S4x16, .f32⟩ : BufTy).Contents (Elt F) → (⟨S4x1x16, .f32⟩ : BufTy).Contents (Elt F)),
    unary main_v9968 main_v9972 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9971 main_v9973 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9972 main_v9973 main_v9974 (mulf : (⟨S4x256x16, .f32⟩ : BufTy).Contents (Elt F) → (⟨S4x256x16, .f32⟩ : BufTy).Contents (Elt F) → (⟨S4x256x16, .f32⟩ : BufTy).Contents (Elt F)),
    binary main_v9965 main_v9974 main_v9975 (addf : (⟨S4x256x16, .f32⟩ : BufTy).Contents (Elt F) → (⟨S4x256x16, .f32⟩ : BufTy).Contents (Elt F) → (⟨S4x256x16, .f32⟩ : BufTy).Contents (Elt F)),
    unary main_arg3 main_v9976 ((extractStridedSlice S4x1x16 ![0, 498, 0] · slices_S4x512x16_S4x1x16_0_498_0) : (⟨S4x512x16, .f32⟩ : BufTy).Contents (Elt F) → (⟨S4x1x16, .f32⟩ : BufTy).Contents (Elt F)),
    reshape main_v9976 main_v9977 rfl shapeCasts_S4x1x16_S4x16,
    unary main_v9977 main_v9978 (broadcastInDim S4x1x16 ![0, 2] bcast_S4x16_S4x1x16_0_2 : (⟨S4x16, .f32⟩ : BufTy).Contents (Elt F) → (⟨S4x1x16, .f32⟩ : BufTy).Contents (Elt F)),
    unary main_v9978 main_v9979 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9975 main_v9979 main_v9980 (mulf : (⟨S4x256x16, .f32⟩ : BufTy).Contents (Elt F) → (⟨S4x256x16, .f32⟩ : BufTy).Contents (Elt F) → (⟨S4x256x16, .f32⟩ : BufTy).Contents (Elt F)),
    nullary main_cst_996 (constant S_ .f32 0x00000000#32),
    binary main_v9980 main_cst_996 main_v9981 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_997 (constantI S_ 32 498#32),
    unary main_c_997 main_v9982 (broadcastInDim S1 ![] bcast_S_S1 : (⟨S_, .i32⟩ : BufTy).Contents (Elt F) → (⟨S1, .i32⟩ : BufTy).Contents (Elt F)),
    ternary main_v9963 main_v9982 main_v9981 main_v9983 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps498_ok : (stepOps498 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step498_val (V : Valuation τ sig (Elt Ideal)) :
    after (stepOps498 (F := Ideal)) V (no_index (Proc.devRef .tc main_v9975)) = stepH 498 (by decide) (V (Proc.devRef .tc main_arg0)) (V (Proc.devRef .tc main_v3)) (V (Proc.devRef .tc main_arg2)) (V (Proc.devRef .tc main_v9955))
    ∧ after (stepOps498 (F := Ideal)) V (no_index (Proc.devRef .tc main_v9983)) = stepY 498 (by decide) (V (Proc.devRef .tc main_arg3)) (stepH 498 (by decide) (V (Proc.devRef .tc main_arg0)) (V (Proc.devRef .tc main_v3)) (V (Proc.devRef .tc main_arg2)) (V (Proc.devRef .tc main_v9955))) (V (Proc.devRef .tc main_v9963)) := by
  simp only [stepOps498]
  after_results_simp
  first | exact ⟨rfl, rfl⟩ | fail "value"
/-- Step 499 of the loop: operations 10985 … 11006 of the program. -/
abbrev stepOps499 : List (HloOp τ sig (Elt F)) :=
  [ unary main_v3 main_v9984 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9975 main_v9984 main_v9985 (mulf : (⟨S4x256x16, .f32⟩ : BufTy).Contents (Elt F) → (⟨S4x256x16, .f32⟩ : BufTy).Contents (Elt F) → (⟨S4x256x16, .f32⟩ : BufTy).Contents (Elt F)),
    unary main_arg0 main_v9986 ((extractStridedSlice S4x1x256 ![0, 499, 0] · slices_S4x512x256_S4x1x256_0_499_0) : (⟨S4x512x256, .f32⟩ : BufTy).Contents (Elt F) → (⟨S4x1x256, .f32⟩ : BufTy).Contents (Elt F)),
    reshape main_v9986 main_v9987 rfl shapeCasts_S4x1x256_S4x256,
    unary main_v9987 main_v9988 (broadcastInDim S4x256x1 ![0, 1] bcast_S4x256_S4x256x1_0_1 : (⟨S4x256, .f32⟩ : BufTy).Contents (Elt F) → (⟨S4x256x1, .f32⟩ : BufTy).Contents (Elt F)),
    unary main_arg2 main_v9989 ((extractStridedSlice S4x1x16 ![0, 499, 0] · slices_S4x512x16_S4x1x16_0_499_0) : (⟨S4x512x16, .f32⟩ : BufTy).Contents (Elt F) → (⟨S4x1x16, .f32⟩ : BufTy).Contents (Elt F)),
    reshape main_v9989 main_v9990 rfl shapeCasts_S4x1x16_S4x16,
    unary main_v9990 main_v9991 (broadcastInDim S4x1x16 ![0, 2] bcast_S4x16_S4x1x16_0_2 : (⟨S4x16, .f32⟩ : BufTy).Contents (Elt F) → (⟨S4x1x16, .f32⟩ : BufTy).Contents (Elt F)),
    unary main_v9988 main_v9992 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v9991 main_v9993 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9992 main_v9993 main_v9994 (mulf : (⟨S4x256x16, .f32⟩ : BufTy).Contents (Elt F) → (⟨S4x256x16, .f32⟩ : BufTy).Contents (Elt F) → (⟨S4x256x16, .f32⟩ : BufTy).Contents (Elt F)),
    binary main_v9985 main_v9994 main_v9995 (addf : (⟨S4x256x16, .f32⟩ : BufTy).Contents (Elt F) → (⟨S4x256x16, .f32⟩ : BufTy).Contents (Elt F) → (⟨S4x256x16, .f32⟩ : BufTy).Contents (Elt F)),
    unary main_arg3 main_v9996 ((extractStridedSlice S4x1x16 ![0, 499, 0] · slices_S4x512x16_S4x1x16_0_499_0) : (⟨S4x512x16, .f32⟩ : BufTy).Contents (Elt F) → (⟨S4x1x16, .f32⟩ : BufTy).Contents (Elt F)),
    reshape main_v9996 main_v9997 rfl shapeCasts_S4x1x16_S4x16,
    unary main_v9997 main_v9998 (broadcastInDim S4x1x16 ![0, 2] bcast_S4x16_S4x1x16_0_2 : (⟨S4x16, .f32⟩ : BufTy).Contents (Elt F) → (⟨S4x1x16, .f32⟩ : BufTy).Contents (Elt F)),
    unary main_v9998 main_v9999 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v9995 main_v9999 main_v10000 (mulf : (⟨S4x256x16, .f32⟩ : BufTy).Contents (Elt F) → (⟨S4x256x16, .f32⟩ : BufTy).Contents (Elt F) → (⟨S4x256x16, .f32⟩ : BufTy).Contents (Elt F)),
    nullary main_cst_998 (constant S_ .f32 0x00000000#32),
    binary main_v10000 main_cst_998 main_v10001 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_999 (constantI S_ 32 499#32),
    unary main_c_999 main_v10002 (broadcastInDim S1 ![] bcast_S_S1 : (⟨S_, .i32⟩ : BufTy).Contents (Elt F) → (⟨S1, .i32⟩ : BufTy).Contents (Elt F)),
    ternary main_v9983 main_v10002 main_v10001 main_v10003 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps499_ok : (stepOps499 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step499_val (V : Valuation τ sig (Elt Ideal)) :
    after (stepOps499 (F := Ideal)) V (no_index (Proc.devRef .tc main_v9995)) = stepH 499 (by decide) (V (Proc.devRef .tc main_arg0)) (V (Proc.devRef .tc main_v3)) (V (Proc.devRef .tc main_arg2)) (V (Proc.devRef .tc main_v9975))
    ∧ after (stepOps499 (F := Ideal)) V (no_index (Proc.devRef .tc main_v10003)) = stepY 499 (by decide) (V (Proc.devRef .tc main_arg3)) (stepH 499 (by decide) (V (Proc.devRef .tc main_arg0)) (V (Proc.devRef .tc main_v3)) (V (Proc.devRef .tc main_arg2)) (V (Proc.devRef .tc main_v9975))) (V (Proc.devRef .tc main_v9983)) := by
  simp only [stepOps499]
  after_results_simp
  first | exact ⟨rfl, rfl⟩ | fail "value"
/-- Step 500 of the loop: operations 11007 … 11028 of the program. -/
abbrev stepOps500 : List (HloOp τ sig (Elt F)) :=
  [ unary main_v3 main_v10004 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v9995 main_v10004 main_v10005 (mulf : (⟨S4x256x16, .f32⟩ : BufTy).Contents (Elt F) → (⟨S4x256x16, .f32⟩ : BufTy).Contents (Elt F) → (⟨S4x256x16, .f32⟩ : BufTy).Contents (Elt F)),
    unary main_arg0 main_v10006 ((extractStridedSlice S4x1x256 ![0, 500, 0] · slices_S4x512x256_S4x1x256_0_500_0) : (⟨S4x512x256, .f32⟩ : BufTy).Contents (Elt F) → (⟨S4x1x256, .f32⟩ : BufTy).Contents (Elt F)),
    reshape main_v10006 main_v10007 rfl shapeCasts_S4x1x256_S4x256,
    unary main_v10007 main_v10008 (broadcastInDim S4x256x1 ![0, 1] bcast_S4x256_S4x256x1_0_1 : (⟨S4x256, .f32⟩ : BufTy).Contents (Elt F) → (⟨S4x256x1, .f32⟩ : BufTy).Contents (Elt F)),
    unary main_arg2 main_v10009 ((extractStridedSlice S4x1x16 ![0, 500, 0] · slices_S4x512x16_S4x1x16_0_500_0) : (⟨S4x512x16, .f32⟩ : BufTy).Contents (Elt F) → (⟨S4x1x16, .f32⟩ : BufTy).Contents (Elt F)),
    reshape main_v10009 main_v10010 rfl shapeCasts_S4x1x16_S4x16,
    unary main_v10010 main_v10011 (broadcastInDim S4x1x16 ![0, 2] bcast_S4x16_S4x1x16_0_2 : (⟨S4x16, .f32⟩ : BufTy).Contents (Elt F) → (⟨S4x1x16, .f32⟩ : BufTy).Contents (Elt F)),
    unary main_v10008 main_v10012 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10011 main_v10013 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10012 main_v10013 main_v10014 (mulf : (⟨S4x256x16, .f32⟩ : BufTy).Contents (Elt F) → (⟨S4x256x16, .f32⟩ : BufTy).Contents (Elt F) → (⟨S4x256x16, .f32⟩ : BufTy).Contents (Elt F)),
    binary main_v10005 main_v10014 main_v10015 (addf : (⟨S4x256x16, .f32⟩ : BufTy).Contents (Elt F) → (⟨S4x256x16, .f32⟩ : BufTy).Contents (Elt F) → (⟨S4x256x16, .f32⟩ : BufTy).Contents (Elt F)),
    unary main_arg3 main_v10016 ((extractStridedSlice S4x1x16 ![0, 500, 0] · slices_S4x512x16_S4x1x16_0_500_0) : (⟨S4x512x16, .f32⟩ : BufTy).Contents (Elt F) → (⟨S4x1x16, .f32⟩ : BufTy).Contents (Elt F)),
    reshape main_v10016 main_v10017 rfl shapeCasts_S4x1x16_S4x16,
    unary main_v10017 main_v10018 (broadcastInDim S4x1x16 ![0, 2] bcast_S4x16_S4x1x16_0_2 : (⟨S4x16, .f32⟩ : BufTy).Contents (Elt F) → (⟨S4x1x16, .f32⟩ : BufTy).Contents (Elt F)),
    unary main_v10018 main_v10019 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10015 main_v10019 main_v10020 (mulf : (⟨S4x256x16, .f32⟩ : BufTy).Contents (Elt F) → (⟨S4x256x16, .f32⟩ : BufTy).Contents (Elt F) → (⟨S4x256x16, .f32⟩ : BufTy).Contents (Elt F)),
    nullary main_cst_1000 (constant S_ .f32 0x00000000#32),
    binary main_v10020 main_cst_1000 main_v10021 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1001 (constantI S_ 32 500#32),
    unary main_c_1001 main_v10022 (broadcastInDim S1 ![] bcast_S_S1 : (⟨S_, .i32⟩ : BufTy).Contents (Elt F) → (⟨S1, .i32⟩ : BufTy).Contents (Elt F)),
    ternary main_v10003 main_v10022 main_v10021 main_v10023 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps500_ok : (stepOps500 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step500_val (V : Valuation τ sig (Elt Ideal)) :
    after (stepOps500 (F := Ideal)) V (no_index (Proc.devRef .tc main_v10015)) = stepH 500 (by decide) (V (Proc.devRef .tc main_arg0)) (V (Proc.devRef .tc main_v3)) (V (Proc.devRef .tc main_arg2)) (V (Proc.devRef .tc main_v9995))
    ∧ after (stepOps500 (F := Ideal)) V (no_index (Proc.devRef .tc main_v10023)) = stepY 500 (by decide) (V (Proc.devRef .tc main_arg3)) (stepH 500 (by decide) (V (Proc.devRef .tc main_arg0)) (V (Proc.devRef .tc main_v3)) (V (Proc.devRef .tc main_arg2)) (V (Proc.devRef .tc main_v9995))) (V (Proc.devRef .tc main_v10003)) := by
  simp only [stepOps500]
  after_results_simp
  first | exact ⟨rfl, rfl⟩ | fail "value"
/-- Step 501 of the loop: operations 11029 … 11050 of the program. -/
abbrev stepOps501 : List (HloOp τ sig (Elt F)) :=
  [ unary main_v3 main_v10024 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10015 main_v10024 main_v10025 (mulf : (⟨S4x256x16, .f32⟩ : BufTy).Contents (Elt F) → (⟨S4x256x16, .f32⟩ : BufTy).Contents (Elt F) → (⟨S4x256x16, .f32⟩ : BufTy).Contents (Elt F)),
    unary main_arg0 main_v10026 ((extractStridedSlice S4x1x256 ![0, 501, 0] · slices_S4x512x256_S4x1x256_0_501_0) : (⟨S4x512x256, .f32⟩ : BufTy).Contents (Elt F) → (⟨S4x1x256, .f32⟩ : BufTy).Contents (Elt F)),
    reshape main_v10026 main_v10027 rfl shapeCasts_S4x1x256_S4x256,
    unary main_v10027 main_v10028 (broadcastInDim S4x256x1 ![0, 1] bcast_S4x256_S4x256x1_0_1 : (⟨S4x256, .f32⟩ : BufTy).Contents (Elt F) → (⟨S4x256x1, .f32⟩ : BufTy).Contents (Elt F)),
    unary main_arg2 main_v10029 ((extractStridedSlice S4x1x16 ![0, 501, 0] · slices_S4x512x16_S4x1x16_0_501_0) : (⟨S4x512x16, .f32⟩ : BufTy).Contents (Elt F) → (⟨S4x1x16, .f32⟩ : BufTy).Contents (Elt F)),
    reshape main_v10029 main_v10030 rfl shapeCasts_S4x1x16_S4x16,
    unary main_v10030 main_v10031 (broadcastInDim S4x1x16 ![0, 2] bcast_S4x16_S4x1x16_0_2 : (⟨S4x16, .f32⟩ : BufTy).Contents (Elt F) → (⟨S4x1x16, .f32⟩ : BufTy).Contents (Elt F)),
    unary main_v10028 main_v10032 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10031 main_v10033 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10032 main_v10033 main_v10034 (mulf : (⟨S4x256x16, .f32⟩ : BufTy).Contents (Elt F) → (⟨S4x256x16, .f32⟩ : BufTy).Contents (Elt F) → (⟨S4x256x16, .f32⟩ : BufTy).Contents (Elt F)),
    binary main_v10025 main_v10034 main_v10035 (addf : (⟨S4x256x16, .f32⟩ : BufTy).Contents (Elt F) → (⟨S4x256x16, .f32⟩ : BufTy).Contents (Elt F) → (⟨S4x256x16, .f32⟩ : BufTy).Contents (Elt F)),
    unary main_arg3 main_v10036 ((extractStridedSlice S4x1x16 ![0, 501, 0] · slices_S4x512x16_S4x1x16_0_501_0) : (⟨S4x512x16, .f32⟩ : BufTy).Contents (Elt F) → (⟨S4x1x16, .f32⟩ : BufTy).Contents (Elt F)),
    reshape main_v10036 main_v10037 rfl shapeCasts_S4x1x16_S4x16,
    unary main_v10037 main_v10038 (broadcastInDim S4x1x16 ![0, 2] bcast_S4x16_S4x1x16_0_2 : (⟨S4x16, .f32⟩ : BufTy).Contents (Elt F) → (⟨S4x1x16, .f32⟩ : BufTy).Contents (Elt F)),
    unary main_v10038 main_v10039 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10035 main_v10039 main_v10040 (mulf : (⟨S4x256x16, .f32⟩ : BufTy).Contents (Elt F) → (⟨S4x256x16, .f32⟩ : BufTy).Contents (Elt F) → (⟨S4x256x16, .f32⟩ : BufTy).Contents (Elt F)),
    nullary main_cst_1002 (constant S_ .f32 0x00000000#32),
    binary main_v10040 main_cst_1002 main_v10041 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1003 (constantI S_ 32 501#32),
    unary main_c_1003 main_v10042 (broadcastInDim S1 ![] bcast_S_S1 : (⟨S_, .i32⟩ : BufTy).Contents (Elt F) → (⟨S1, .i32⟩ : BufTy).Contents (Elt F)),
    ternary main_v10023 main_v10042 main_v10041 main_v10043 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps501_ok : (stepOps501 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step501_val (V : Valuation τ sig (Elt Ideal)) :
    after (stepOps501 (F := Ideal)) V (no_index (Proc.devRef .tc main_v10035)) = stepH 501 (by decide) (V (Proc.devRef .tc main_arg0)) (V (Proc.devRef .tc main_v3)) (V (Proc.devRef .tc main_arg2)) (V (Proc.devRef .tc main_v10015))
    ∧ after (stepOps501 (F := Ideal)) V (no_index (Proc.devRef .tc main_v10043)) = stepY 501 (by decide) (V (Proc.devRef .tc main_arg3)) (stepH 501 (by decide) (V (Proc.devRef .tc main_arg0)) (V (Proc.devRef .tc main_v3)) (V (Proc.devRef .tc main_arg2)) (V (Proc.devRef .tc main_v10015))) (V (Proc.devRef .tc main_v10023)) := by
  simp only [stepOps501]
  after_results_simp
  first | exact ⟨rfl, rfl⟩ | fail "value"
/-- Step 502 of the loop: operations 11051 … 11072 of the program. -/
abbrev stepOps502 : List (HloOp τ sig (Elt F)) :=
  [ unary main_v3 main_v10044 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10035 main_v10044 main_v10045 (mulf : (⟨S4x256x16, .f32⟩ : BufTy).Contents (Elt F) → (⟨S4x256x16, .f32⟩ : BufTy).Contents (Elt F) → (⟨S4x256x16, .f32⟩ : BufTy).Contents (Elt F)),
    unary main_arg0 main_v10046 ((extractStridedSlice S4x1x256 ![0, 502, 0] · slices_S4x512x256_S4x1x256_0_502_0) : (⟨S4x512x256, .f32⟩ : BufTy).Contents (Elt F) → (⟨S4x1x256, .f32⟩ : BufTy).Contents (Elt F)),
    reshape main_v10046 main_v10047 rfl shapeCasts_S4x1x256_S4x256,
    unary main_v10047 main_v10048 (broadcastInDim S4x256x1 ![0, 1] bcast_S4x256_S4x256x1_0_1 : (⟨S4x256, .f32⟩ : BufTy).Contents (Elt F) → (⟨S4x256x1, .f32⟩ : BufTy).Contents (Elt F)),
    unary main_arg2 main_v10049 ((extractStridedSlice S4x1x16 ![0, 502, 0] · slices_S4x512x16_S4x1x16_0_502_0) : (⟨S4x512x16, .f32⟩ : BufTy).Contents (Elt F) → (⟨S4x1x16, .f32⟩ : BufTy).Contents (Elt F)),
    reshape main_v10049 main_v10050 rfl shapeCasts_S4x1x16_S4x16,
    unary main_v10050 main_v10051 (broadcastInDim S4x1x16 ![0, 2] bcast_S4x16_S4x1x16_0_2 : (⟨S4x16, .f32⟩ : BufTy).Contents (Elt F) → (⟨S4x1x16, .f32⟩ : BufTy).Contents (Elt F)),
    unary main_v10048 main_v10052 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10051 main_v10053 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10052 main_v10053 main_v10054 (mulf : (⟨S4x256x16, .f32⟩ : BufTy).Contents (Elt F) → (⟨S4x256x16, .f32⟩ : BufTy).Contents (Elt F) → (⟨S4x256x16, .f32⟩ : BufTy).Contents (Elt F)),
    binary main_v10045 main_v10054 main_v10055 (addf : (⟨S4x256x16, .f32⟩ : BufTy).Contents (Elt F) → (⟨S4x256x16, .f32⟩ : BufTy).Contents (Elt F) → (⟨S4x256x16, .f32⟩ : BufTy).Contents (Elt F)),
    unary main_arg3 main_v10056 ((extractStridedSlice S4x1x16 ![0, 502, 0] · slices_S4x512x16_S4x1x16_0_502_0) : (⟨S4x512x16, .f32⟩ : BufTy).Contents (Elt F) → (⟨S4x1x16, .f32⟩ : BufTy).Contents (Elt F)),
    reshape main_v10056 main_v10057 rfl shapeCasts_S4x1x16_S4x16,
    unary main_v10057 main_v10058 (broadcastInDim S4x1x16 ![0, 2] bcast_S4x16_S4x1x16_0_2 : (⟨S4x16, .f32⟩ : BufTy).Contents (Elt F) → (⟨S4x1x16, .f32⟩ : BufTy).Contents (Elt F)),
    unary main_v10058 main_v10059 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10055 main_v10059 main_v10060 (mulf : (⟨S4x256x16, .f32⟩ : BufTy).Contents (Elt F) → (⟨S4x256x16, .f32⟩ : BufTy).Contents (Elt F) → (⟨S4x256x16, .f32⟩ : BufTy).Contents (Elt F)),
    nullary main_cst_1004 (constant S_ .f32 0x00000000#32),
    binary main_v10060 main_cst_1004 main_v10061 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1005 (constantI S_ 32 502#32),
    unary main_c_1005 main_v10062 (broadcastInDim S1 ![] bcast_S_S1 : (⟨S_, .i32⟩ : BufTy).Contents (Elt F) → (⟨S1, .i32⟩ : BufTy).Contents (Elt F)),
    ternary main_v10043 main_v10062 main_v10061 main_v10063 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps502_ok : (stepOps502 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step502_val (V : Valuation τ sig (Elt Ideal)) :
    after (stepOps502 (F := Ideal)) V (no_index (Proc.devRef .tc main_v10055)) = stepH 502 (by decide) (V (Proc.devRef .tc main_arg0)) (V (Proc.devRef .tc main_v3)) (V (Proc.devRef .tc main_arg2)) (V (Proc.devRef .tc main_v10035))
    ∧ after (stepOps502 (F := Ideal)) V (no_index (Proc.devRef .tc main_v10063)) = stepY 502 (by decide) (V (Proc.devRef .tc main_arg3)) (stepH 502 (by decide) (V (Proc.devRef .tc main_arg0)) (V (Proc.devRef .tc main_v3)) (V (Proc.devRef .tc main_arg2)) (V (Proc.devRef .tc main_v10035))) (V (Proc.devRef .tc main_v10043)) := by
  simp only [stepOps502]
  after_results_simp
  first | exact ⟨rfl, rfl⟩ | fail "value"
/-- Step 503 of the loop: operations 11073 … 11094 of the program. -/
abbrev stepOps503 : List (HloOp τ sig (Elt F)) :=
  [ unary main_v3 main_v10064 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10055 main_v10064 main_v10065 (mulf : (⟨S4x256x16, .f32⟩ : BufTy).Contents (Elt F) → (⟨S4x256x16, .f32⟩ : BufTy).Contents (Elt F) → (⟨S4x256x16, .f32⟩ : BufTy).Contents (Elt F)),
    unary main_arg0 main_v10066 ((extractStridedSlice S4x1x256 ![0, 503, 0] · slices_S4x512x256_S4x1x256_0_503_0) : (⟨S4x512x256, .f32⟩ : BufTy).Contents (Elt F) → (⟨S4x1x256, .f32⟩ : BufTy).Contents (Elt F)),
    reshape main_v10066 main_v10067 rfl shapeCasts_S4x1x256_S4x256,
    unary main_v10067 main_v10068 (broadcastInDim S4x256x1 ![0, 1] bcast_S4x256_S4x256x1_0_1 : (⟨S4x256, .f32⟩ : BufTy).Contents (Elt F) → (⟨S4x256x1, .f32⟩ : BufTy).Contents (Elt F)),
    unary main_arg2 main_v10069 ((extractStridedSlice S4x1x16 ![0, 503, 0] · slices_S4x512x16_S4x1x16_0_503_0) : (⟨S4x512x16, .f32⟩ : BufTy).Contents (Elt F) → (⟨S4x1x16, .f32⟩ : BufTy).Contents (Elt F)),
    reshape main_v10069 main_v10070 rfl shapeCasts_S4x1x16_S4x16,
    unary main_v10070 main_v10071 (broadcastInDim S4x1x16 ![0, 2] bcast_S4x16_S4x1x16_0_2 : (⟨S4x16, .f32⟩ : BufTy).Contents (Elt F) → (⟨S4x1x16, .f32⟩ : BufTy).Contents (Elt F)),
    unary main_v10068 main_v10072 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10071 main_v10073 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10072 main_v10073 main_v10074 (mulf : (⟨S4x256x16, .f32⟩ : BufTy).Contents (Elt F) → (⟨S4x256x16, .f32⟩ : BufTy).Contents (Elt F) → (⟨S4x256x16, .f32⟩ : BufTy).Contents (Elt F)),
    binary main_v10065 main_v10074 main_v10075 (addf : (⟨S4x256x16, .f32⟩ : BufTy).Contents (Elt F) → (⟨S4x256x16, .f32⟩ : BufTy).Contents (Elt F) → (⟨S4x256x16, .f32⟩ : BufTy).Contents (Elt F)),
    unary main_arg3 main_v10076 ((extractStridedSlice S4x1x16 ![0, 503, 0] · slices_S4x512x16_S4x1x16_0_503_0) : (⟨S4x512x16, .f32⟩ : BufTy).Contents (Elt F) → (⟨S4x1x16, .f32⟩ : BufTy).Contents (Elt F)),
    reshape main_v10076 main_v10077 rfl shapeCasts_S4x1x16_S4x16,
    unary main_v10077 main_v10078 (broadcastInDim S4x1x16 ![0, 2] bcast_S4x16_S4x1x16_0_2 : (⟨S4x16, .f32⟩ : BufTy).Contents (Elt F) → (⟨S4x1x16, .f32⟩ : BufTy).Contents (Elt F)),
    unary main_v10078 main_v10079 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10075 main_v10079 main_v10080 (mulf : (⟨S4x256x16, .f32⟩ : BufTy).Contents (Elt F) → (⟨S4x256x16, .f32⟩ : BufTy).Contents (Elt F) → (⟨S4x256x16, .f32⟩ : BufTy).Contents (Elt F)),
    nullary main_cst_1006 (constant S_ .f32 0x00000000#32),
    binary main_v10080 main_cst_1006 main_v10081 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1007 (constantI S_ 32 503#32),
    unary main_c_1007 main_v10082 (broadcastInDim S1 ![] bcast_S_S1 : (⟨S_, .i32⟩ : BufTy).Contents (Elt F) → (⟨S1, .i32⟩ : BufTy).Contents (Elt F)),
    ternary main_v10063 main_v10082 main_v10081 main_v10083 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps503_ok : (stepOps503 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step503_val (V : Valuation τ sig (Elt Ideal)) :
    after (stepOps503 (F := Ideal)) V (no_index (Proc.devRef .tc main_v10075)) = stepH 503 (by decide) (V (Proc.devRef .tc main_arg0)) (V (Proc.devRef .tc main_v3)) (V (Proc.devRef .tc main_arg2)) (V (Proc.devRef .tc main_v10055))
    ∧ after (stepOps503 (F := Ideal)) V (no_index (Proc.devRef .tc main_v10083)) = stepY 503 (by decide) (V (Proc.devRef .tc main_arg3)) (stepH 503 (by decide) (V (Proc.devRef .tc main_arg0)) (V (Proc.devRef .tc main_v3)) (V (Proc.devRef .tc main_arg2)) (V (Proc.devRef .tc main_v10055))) (V (Proc.devRef .tc main_v10063)) := by
  simp only [stepOps503]
  after_results_simp
  first | exact ⟨rfl, rfl⟩ | fail "value"
/-- Step 504 of the loop: operations 11095 … 11116 of the program. -/
abbrev stepOps504 : List (HloOp τ sig (Elt F)) :=
  [ unary main_v3 main_v10084 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10075 main_v10084 main_v10085 (mulf : (⟨S4x256x16, .f32⟩ : BufTy).Contents (Elt F) → (⟨S4x256x16, .f32⟩ : BufTy).Contents (Elt F) → (⟨S4x256x16, .f32⟩ : BufTy).Contents (Elt F)),
    unary main_arg0 main_v10086 ((extractStridedSlice S4x1x256 ![0, 504, 0] · slices_S4x512x256_S4x1x256_0_504_0) : (⟨S4x512x256, .f32⟩ : BufTy).Contents (Elt F) → (⟨S4x1x256, .f32⟩ : BufTy).Contents (Elt F)),
    reshape main_v10086 main_v10087 rfl shapeCasts_S4x1x256_S4x256,
    unary main_v10087 main_v10088 (broadcastInDim S4x256x1 ![0, 1] bcast_S4x256_S4x256x1_0_1 : (⟨S4x256, .f32⟩ : BufTy).Contents (Elt F) → (⟨S4x256x1, .f32⟩ : BufTy).Contents (Elt F)),
    unary main_arg2 main_v10089 ((extractStridedSlice S4x1x16 ![0, 504, 0] · slices_S4x512x16_S4x1x16_0_504_0) : (⟨S4x512x16, .f32⟩ : BufTy).Contents (Elt F) → (⟨S4x1x16, .f32⟩ : BufTy).Contents (Elt F)),
    reshape main_v10089 main_v10090 rfl shapeCasts_S4x1x16_S4x16,
    unary main_v10090 main_v10091 (broadcastInDim S4x1x16 ![0, 2] bcast_S4x16_S4x1x16_0_2 : (⟨S4x16, .f32⟩ : BufTy).Contents (Elt F) → (⟨S4x1x16, .f32⟩ : BufTy).Contents (Elt F)),
    unary main_v10088 main_v10092 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10091 main_v10093 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10092 main_v10093 main_v10094 (mulf : (⟨S4x256x16, .f32⟩ : BufTy).Contents (Elt F) → (⟨S4x256x16, .f32⟩ : BufTy).Contents (Elt F) → (⟨S4x256x16, .f32⟩ : BufTy).Contents (Elt F)),
    binary main_v10085 main_v10094 main_v10095 (addf : (⟨S4x256x16, .f32⟩ : BufTy).Contents (Elt F) → (⟨S4x256x16, .f32⟩ : BufTy).Contents (Elt F) → (⟨S4x256x16, .f32⟩ : BufTy).Contents (Elt F)),
    unary main_arg3 main_v10096 ((extractStridedSlice S4x1x16 ![0, 504, 0] · slices_S4x512x16_S4x1x16_0_504_0) : (⟨S4x512x16, .f32⟩ : BufTy).Contents (Elt F) → (⟨S4x1x16, .f32⟩ : BufTy).Contents (Elt F)),
    reshape main_v10096 main_v10097 rfl shapeCasts_S4x1x16_S4x16,
    unary main_v10097 main_v10098 (broadcastInDim S4x1x16 ![0, 2] bcast_S4x16_S4x1x16_0_2 : (⟨S4x16, .f32⟩ : BufTy).Contents (Elt F) → (⟨S4x1x16, .f32⟩ : BufTy).Contents (Elt F)),
    unary main_v10098 main_v10099 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10095 main_v10099 main_v10100 (mulf : (⟨S4x256x16, .f32⟩ : BufTy).Contents (Elt F) → (⟨S4x256x16, .f32⟩ : BufTy).Contents (Elt F) → (⟨S4x256x16, .f32⟩ : BufTy).Contents (Elt F)),
    nullary main_cst_1008 (constant S_ .f32 0x00000000#32),
    binary main_v10100 main_cst_1008 main_v10101 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1009 (constantI S_ 32 504#32),
    unary main_c_1009 main_v10102 (broadcastInDim S1 ![] bcast_S_S1 : (⟨S_, .i32⟩ : BufTy).Contents (Elt F) → (⟨S1, .i32⟩ : BufTy).Contents (Elt F)),
    ternary main_v10083 main_v10102 main_v10101 main_v10103 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps504_ok : (stepOps504 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step504_val (V : Valuation τ sig (Elt Ideal)) :
    after (stepOps504 (F := Ideal)) V (no_index (Proc.devRef .tc main_v10095)) = stepH 504 (by decide) (V (Proc.devRef .tc main_arg0)) (V (Proc.devRef .tc main_v3)) (V (Proc.devRef .tc main_arg2)) (V (Proc.devRef .tc main_v10075))
    ∧ after (stepOps504 (F := Ideal)) V (no_index (Proc.devRef .tc main_v10103)) = stepY 504 (by decide) (V (Proc.devRef .tc main_arg3)) (stepH 504 (by decide) (V (Proc.devRef .tc main_arg0)) (V (Proc.devRef .tc main_v3)) (V (Proc.devRef .tc main_arg2)) (V (Proc.devRef .tc main_v10075))) (V (Proc.devRef .tc main_v10083)) := by
  simp only [stepOps504]
  after_results_simp
  first | exact ⟨rfl, rfl⟩ | fail "value"
/-- Step 505 of the loop: operations 11117 … 11138 of the program. -/
abbrev stepOps505 : List (HloOp τ sig (Elt F)) :=
  [ unary main_v3 main_v10104 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10095 main_v10104 main_v10105 (mulf : (⟨S4x256x16, .f32⟩ : BufTy).Contents (Elt F) → (⟨S4x256x16, .f32⟩ : BufTy).Contents (Elt F) → (⟨S4x256x16, .f32⟩ : BufTy).Contents (Elt F)),
    unary main_arg0 main_v10106 ((extractStridedSlice S4x1x256 ![0, 505, 0] · slices_S4x512x256_S4x1x256_0_505_0) : (⟨S4x512x256, .f32⟩ : BufTy).Contents (Elt F) → (⟨S4x1x256, .f32⟩ : BufTy).Contents (Elt F)),
    reshape main_v10106 main_v10107 rfl shapeCasts_S4x1x256_S4x256,
    unary main_v10107 main_v10108 (broadcastInDim S4x256x1 ![0, 1] bcast_S4x256_S4x256x1_0_1 : (⟨S4x256, .f32⟩ : BufTy).Contents (Elt F) → (⟨S4x256x1, .f32⟩ : BufTy).Contents (Elt F)),
    unary main_arg2 main_v10109 ((extractStridedSlice S4x1x16 ![0, 505, 0] · slices_S4x512x16_S4x1x16_0_505_0) : (⟨S4x512x16, .f32⟩ : BufTy).Contents (Elt F) → (⟨S4x1x16, .f32⟩ : BufTy).Contents (Elt F)),
    reshape main_v10109 main_v10110 rfl shapeCasts_S4x1x16_S4x16,
    unary main_v10110 main_v10111 (broadcastInDim S4x1x16 ![0, 2] bcast_S4x16_S4x1x16_0_2 : (⟨S4x16, .f32⟩ : BufTy).Contents (Elt F) → (⟨S4x1x16, .f32⟩ : BufTy).Contents (Elt F)),
    unary main_v10108 main_v10112 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10111 main_v10113 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10112 main_v10113 main_v10114 (mulf : (⟨S4x256x16, .f32⟩ : BufTy).Contents (Elt F) → (⟨S4x256x16, .f32⟩ : BufTy).Contents (Elt F) → (⟨S4x256x16, .f32⟩ : BufTy).Contents (Elt F)),
    binary main_v10105 main_v10114 main_v10115 (addf : (⟨S4x256x16, .f32⟩ : BufTy).Contents (Elt F) → (⟨S4x256x16, .f32⟩ : BufTy).Contents (Elt F) → (⟨S4x256x16, .f32⟩ : BufTy).Contents (Elt F)),
    unary main_arg3 main_v10116 ((extractStridedSlice S4x1x16 ![0, 505, 0] · slices_S4x512x16_S4x1x16_0_505_0) : (⟨S4x512x16, .f32⟩ : BufTy).Contents (Elt F) → (⟨S4x1x16, .f32⟩ : BufTy).Contents (Elt F)),
    reshape main_v10116 main_v10117 rfl shapeCasts_S4x1x16_S4x16,
    unary main_v10117 main_v10118 (broadcastInDim S4x1x16 ![0, 2] bcast_S4x16_S4x1x16_0_2 : (⟨S4x16, .f32⟩ : BufTy).Contents (Elt F) → (⟨S4x1x16, .f32⟩ : BufTy).Contents (Elt F)),
    unary main_v10118 main_v10119 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10115 main_v10119 main_v10120 (mulf : (⟨S4x256x16, .f32⟩ : BufTy).Contents (Elt F) → (⟨S4x256x16, .f32⟩ : BufTy).Contents (Elt F) → (⟨S4x256x16, .f32⟩ : BufTy).Contents (Elt F)),
    nullary main_cst_1010 (constant S_ .f32 0x00000000#32),
    binary main_v10120 main_cst_1010 main_v10121 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1011 (constantI S_ 32 505#32),
    unary main_c_1011 main_v10122 (broadcastInDim S1 ![] bcast_S_S1 : (⟨S_, .i32⟩ : BufTy).Contents (Elt F) → (⟨S1, .i32⟩ : BufTy).Contents (Elt F)),
    ternary main_v10103 main_v10122 main_v10121 main_v10123 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps505_ok : (stepOps505 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step505_val (V : Valuation τ sig (Elt Ideal)) :
    after (stepOps505 (F := Ideal)) V (no_index (Proc.devRef .tc main_v10115)) = stepH 505 (by decide) (V (Proc.devRef .tc main_arg0)) (V (Proc.devRef .tc main_v3)) (V (Proc.devRef .tc main_arg2)) (V (Proc.devRef .tc main_v10095))
    ∧ after (stepOps505 (F := Ideal)) V (no_index (Proc.devRef .tc main_v10123)) = stepY 505 (by decide) (V (Proc.devRef .tc main_arg3)) (stepH 505 (by decide) (V (Proc.devRef .tc main_arg0)) (V (Proc.devRef .tc main_v3)) (V (Proc.devRef .tc main_arg2)) (V (Proc.devRef .tc main_v10095))) (V (Proc.devRef .tc main_v10103)) := by
  simp only [stepOps505]
  after_results_simp
  first | exact ⟨rfl, rfl⟩ | fail "value"
/-- Step 506 of the loop: operations 11139 … 11160 of the program. -/
abbrev stepOps506 : List (HloOp τ sig (Elt F)) :=
  [ unary main_v3 main_v10124 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10115 main_v10124 main_v10125 (mulf : (⟨S4x256x16, .f32⟩ : BufTy).Contents (Elt F) → (⟨S4x256x16, .f32⟩ : BufTy).Contents (Elt F) → (⟨S4x256x16, .f32⟩ : BufTy).Contents (Elt F)),
    unary main_arg0 main_v10126 ((extractStridedSlice S4x1x256 ![0, 506, 0] · slices_S4x512x256_S4x1x256_0_506_0) : (⟨S4x512x256, .f32⟩ : BufTy).Contents (Elt F) → (⟨S4x1x256, .f32⟩ : BufTy).Contents (Elt F)),
    reshape main_v10126 main_v10127 rfl shapeCasts_S4x1x256_S4x256,
    unary main_v10127 main_v10128 (broadcastInDim S4x256x1 ![0, 1] bcast_S4x256_S4x256x1_0_1 : (⟨S4x256, .f32⟩ : BufTy).Contents (Elt F) → (⟨S4x256x1, .f32⟩ : BufTy).Contents (Elt F)),
    unary main_arg2 main_v10129 ((extractStridedSlice S4x1x16 ![0, 506, 0] · slices_S4x512x16_S4x1x16_0_506_0) : (⟨S4x512x16, .f32⟩ : BufTy).Contents (Elt F) → (⟨S4x1x16, .f32⟩ : BufTy).Contents (Elt F)),
    reshape main_v10129 main_v10130 rfl shapeCasts_S4x1x16_S4x16,
    unary main_v10130 main_v10131 (broadcastInDim S4x1x16 ![0, 2] bcast_S4x16_S4x1x16_0_2 : (⟨S4x16, .f32⟩ : BufTy).Contents (Elt F) → (⟨S4x1x16, .f32⟩ : BufTy).Contents (Elt F)),
    unary main_v10128 main_v10132 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10131 main_v10133 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10132 main_v10133 main_v10134 (mulf : (⟨S4x256x16, .f32⟩ : BufTy).Contents (Elt F) → (⟨S4x256x16, .f32⟩ : BufTy).Contents (Elt F) → (⟨S4x256x16, .f32⟩ : BufTy).Contents (Elt F)),
    binary main_v10125 main_v10134 main_v10135 (addf : (⟨S4x256x16, .f32⟩ : BufTy).Contents (Elt F) → (⟨S4x256x16, .f32⟩ : BufTy).Contents (Elt F) → (⟨S4x256x16, .f32⟩ : BufTy).Contents (Elt F)),
    unary main_arg3 main_v10136 ((extractStridedSlice S4x1x16 ![0, 506, 0] · slices_S4x512x16_S4x1x16_0_506_0) : (⟨S4x512x16, .f32⟩ : BufTy).Contents (Elt F) → (⟨S4x1x16, .f32⟩ : BufTy).Contents (Elt F)),
    reshape main_v10136 main_v10137 rfl shapeCasts_S4x1x16_S4x16,
    unary main_v10137 main_v10138 (broadcastInDim S4x1x16 ![0, 2] bcast_S4x16_S4x1x16_0_2 : (⟨S4x16, .f32⟩ : BufTy).Contents (Elt F) → (⟨S4x1x16, .f32⟩ : BufTy).Contents (Elt F)),
    unary main_v10138 main_v10139 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10135 main_v10139 main_v10140 (mulf : (⟨S4x256x16, .f32⟩ : BufTy).Contents (Elt F) → (⟨S4x256x16, .f32⟩ : BufTy).Contents (Elt F) → (⟨S4x256x16, .f32⟩ : BufTy).Contents (Elt F)),
    nullary main_cst_1012 (constant S_ .f32 0x00000000#32),
    binary main_v10140 main_cst_1012 main_v10141 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1013 (constantI S_ 32 506#32),
    unary main_c_1013 main_v10142 (broadcastInDim S1 ![] bcast_S_S1 : (⟨S_, .i32⟩ : BufTy).Contents (Elt F) → (⟨S1, .i32⟩ : BufTy).Contents (Elt F)),
    ternary main_v10123 main_v10142 main_v10141 main_v10143 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps506_ok : (stepOps506 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step506_val (V : Valuation τ sig (Elt Ideal)) :
    after (stepOps506 (F := Ideal)) V (no_index (Proc.devRef .tc main_v10135)) = stepH 506 (by decide) (V (Proc.devRef .tc main_arg0)) (V (Proc.devRef .tc main_v3)) (V (Proc.devRef .tc main_arg2)) (V (Proc.devRef .tc main_v10115))
    ∧ after (stepOps506 (F := Ideal)) V (no_index (Proc.devRef .tc main_v10143)) = stepY 506 (by decide) (V (Proc.devRef .tc main_arg3)) (stepH 506 (by decide) (V (Proc.devRef .tc main_arg0)) (V (Proc.devRef .tc main_v3)) (V (Proc.devRef .tc main_arg2)) (V (Proc.devRef .tc main_v10115))) (V (Proc.devRef .tc main_v10123)) := by
  simp only [stepOps506]
  after_results_simp
  first | exact ⟨rfl, rfl⟩ | fail "value"
/-- Step 507 of the loop: operations 11161 … 11182 of the program. -/
abbrev stepOps507 : List (HloOp τ sig (Elt F)) :=
  [ unary main_v3 main_v10144 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10135 main_v10144 main_v10145 (mulf : (⟨S4x256x16, .f32⟩ : BufTy).Contents (Elt F) → (⟨S4x256x16, .f32⟩ : BufTy).Contents (Elt F) → (⟨S4x256x16, .f32⟩ : BufTy).Contents (Elt F)),
    unary main_arg0 main_v10146 ((extractStridedSlice S4x1x256 ![0, 507, 0] · slices_S4x512x256_S4x1x256_0_507_0) : (⟨S4x512x256, .f32⟩ : BufTy).Contents (Elt F) → (⟨S4x1x256, .f32⟩ : BufTy).Contents (Elt F)),
    reshape main_v10146 main_v10147 rfl shapeCasts_S4x1x256_S4x256,
    unary main_v10147 main_v10148 (broadcastInDim S4x256x1 ![0, 1] bcast_S4x256_S4x256x1_0_1 : (⟨S4x256, .f32⟩ : BufTy).Contents (Elt F) → (⟨S4x256x1, .f32⟩ : BufTy).Contents (Elt F)),
    unary main_arg2 main_v10149 ((extractStridedSlice S4x1x16 ![0, 507, 0] · slices_S4x512x16_S4x1x16_0_507_0) : (⟨S4x512x16, .f32⟩ : BufTy).Contents (Elt F) → (⟨S4x1x16, .f32⟩ : BufTy).Contents (Elt F)),
    reshape main_v10149 main_v10150 rfl shapeCasts_S4x1x16_S4x16,
    unary main_v10150 main_v10151 (broadcastInDim S4x1x16 ![0, 2] bcast_S4x16_S4x1x16_0_2 : (⟨S4x16, .f32⟩ : BufTy).Contents (Elt F) → (⟨S4x1x16, .f32⟩ : BufTy).Contents (Elt F)),
    unary main_v10148 main_v10152 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10151 main_v10153 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10152 main_v10153 main_v10154 (mulf : (⟨S4x256x16, .f32⟩ : BufTy).Contents (Elt F) → (⟨S4x256x16, .f32⟩ : BufTy).Contents (Elt F) → (⟨S4x256x16, .f32⟩ : BufTy).Contents (Elt F)),
    binary main_v10145 main_v10154 main_v10155 (addf : (⟨S4x256x16, .f32⟩ : BufTy).Contents (Elt F) → (⟨S4x256x16, .f32⟩ : BufTy).Contents (Elt F) → (⟨S4x256x16, .f32⟩ : BufTy).Contents (Elt F)),
    unary main_arg3 main_v10156 ((extractStridedSlice S4x1x16 ![0, 507, 0] · slices_S4x512x16_S4x1x16_0_507_0) : (⟨S4x512x16, .f32⟩ : BufTy).Contents (Elt F) → (⟨S4x1x16, .f32⟩ : BufTy).Contents (Elt F)),
    reshape main_v10156 main_v10157 rfl shapeCasts_S4x1x16_S4x16,
    unary main_v10157 main_v10158 (broadcastInDim S4x1x16 ![0, 2] bcast_S4x16_S4x1x16_0_2 : (⟨S4x16, .f32⟩ : BufTy).Contents (Elt F) → (⟨S4x1x16, .f32⟩ : BufTy).Contents (Elt F)),
    unary main_v10158 main_v10159 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10155 main_v10159 main_v10160 (mulf : (⟨S4x256x16, .f32⟩ : BufTy).Contents (Elt F) → (⟨S4x256x16, .f32⟩ : BufTy).Contents (Elt F) → (⟨S4x256x16, .f32⟩ : BufTy).Contents (Elt F)),
    nullary main_cst_1014 (constant S_ .f32 0x00000000#32),
    binary main_v10160 main_cst_1014 main_v10161 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1015 (constantI S_ 32 507#32),
    unary main_c_1015 main_v10162 (broadcastInDim S1 ![] bcast_S_S1 : (⟨S_, .i32⟩ : BufTy).Contents (Elt F) → (⟨S1, .i32⟩ : BufTy).Contents (Elt F)),
    ternary main_v10143 main_v10162 main_v10161 main_v10163 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps507_ok : (stepOps507 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step507_val (V : Valuation τ sig (Elt Ideal)) :
    after (stepOps507 (F := Ideal)) V (no_index (Proc.devRef .tc main_v10155)) = stepH 507 (by decide) (V (Proc.devRef .tc main_arg0)) (V (Proc.devRef .tc main_v3)) (V (Proc.devRef .tc main_arg2)) (V (Proc.devRef .tc main_v10135))
    ∧ after (stepOps507 (F := Ideal)) V (no_index (Proc.devRef .tc main_v10163)) = stepY 507 (by decide) (V (Proc.devRef .tc main_arg3)) (stepH 507 (by decide) (V (Proc.devRef .tc main_arg0)) (V (Proc.devRef .tc main_v3)) (V (Proc.devRef .tc main_arg2)) (V (Proc.devRef .tc main_v10135))) (V (Proc.devRef .tc main_v10143)) := by
  simp only [stepOps507]
  after_results_simp
  first | exact ⟨rfl, rfl⟩ | fail "value"
/-- Step 508 of the loop: operations 11183 … 11204 of the program. -/
abbrev stepOps508 : List (HloOp τ sig (Elt F)) :=
  [ unary main_v3 main_v10164 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10155 main_v10164 main_v10165 (mulf : (⟨S4x256x16, .f32⟩ : BufTy).Contents (Elt F) → (⟨S4x256x16, .f32⟩ : BufTy).Contents (Elt F) → (⟨S4x256x16, .f32⟩ : BufTy).Contents (Elt F)),
    unary main_arg0 main_v10166 ((extractStridedSlice S4x1x256 ![0, 508, 0] · slices_S4x512x256_S4x1x256_0_508_0) : (⟨S4x512x256, .f32⟩ : BufTy).Contents (Elt F) → (⟨S4x1x256, .f32⟩ : BufTy).Contents (Elt F)),
    reshape main_v10166 main_v10167 rfl shapeCasts_S4x1x256_S4x256,
    unary main_v10167 main_v10168 (broadcastInDim S4x256x1 ![0, 1] bcast_S4x256_S4x256x1_0_1 : (⟨S4x256, .f32⟩ : BufTy).Contents (Elt F) → (⟨S4x256x1, .f32⟩ : BufTy).Contents (Elt F)),
    unary main_arg2 main_v10169 ((extractStridedSlice S4x1x16 ![0, 508, 0] · slices_S4x512x16_S4x1x16_0_508_0) : (⟨S4x512x16, .f32⟩ : BufTy).Contents (Elt F) → (⟨S4x1x16, .f32⟩ : BufTy).Contents (Elt F)),
    reshape main_v10169 main_v10170 rfl shapeCasts_S4x1x16_S4x16,
    unary main_v10170 main_v10171 (broadcastInDim S4x1x16 ![0, 2] bcast_S4x16_S4x1x16_0_2 : (⟨S4x16, .f32⟩ : BufTy).Contents (Elt F) → (⟨S4x1x16, .f32⟩ : BufTy).Contents (Elt F)),
    unary main_v10168 main_v10172 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10171 main_v10173 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10172 main_v10173 main_v10174 (mulf : (⟨S4x256x16, .f32⟩ : BufTy).Contents (Elt F) → (⟨S4x256x16, .f32⟩ : BufTy).Contents (Elt F) → (⟨S4x256x16, .f32⟩ : BufTy).Contents (Elt F)),
    binary main_v10165 main_v10174 main_v10175 (addf : (⟨S4x256x16, .f32⟩ : BufTy).Contents (Elt F) → (⟨S4x256x16, .f32⟩ : BufTy).Contents (Elt F) → (⟨S4x256x16, .f32⟩ : BufTy).Contents (Elt F)),
    unary main_arg3 main_v10176 ((extractStridedSlice S4x1x16 ![0, 508, 0] · slices_S4x512x16_S4x1x16_0_508_0) : (⟨S4x512x16, .f32⟩ : BufTy).Contents (Elt F) → (⟨S4x1x16, .f32⟩ : BufTy).Contents (Elt F)),
    reshape main_v10176 main_v10177 rfl shapeCasts_S4x1x16_S4x16,
    unary main_v10177 main_v10178 (broadcastInDim S4x1x16 ![0, 2] bcast_S4x16_S4x1x16_0_2 : (⟨S4x16, .f32⟩ : BufTy).Contents (Elt F) → (⟨S4x1x16, .f32⟩ : BufTy).Contents (Elt F)),
    unary main_v10178 main_v10179 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10175 main_v10179 main_v10180 (mulf : (⟨S4x256x16, .f32⟩ : BufTy).Contents (Elt F) → (⟨S4x256x16, .f32⟩ : BufTy).Contents (Elt F) → (⟨S4x256x16, .f32⟩ : BufTy).Contents (Elt F)),
    nullary main_cst_1016 (constant S_ .f32 0x00000000#32),
    binary main_v10180 main_cst_1016 main_v10181 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1017 (constantI S_ 32 508#32),
    unary main_c_1017 main_v10182 (broadcastInDim S1 ![] bcast_S_S1 : (⟨S_, .i32⟩ : BufTy).Contents (Elt F) → (⟨S1, .i32⟩ : BufTy).Contents (Elt F)),
    ternary main_v10163 main_v10182 main_v10181 main_v10183 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps508_ok : (stepOps508 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step508_val (V : Valuation τ sig (Elt Ideal)) :
    after (stepOps508 (F := Ideal)) V (no_index (Proc.devRef .tc main_v10175)) = stepH 508 (by decide) (V (Proc.devRef .tc main_arg0)) (V (Proc.devRef .tc main_v3)) (V (Proc.devRef .tc main_arg2)) (V (Proc.devRef .tc main_v10155))
    ∧ after (stepOps508 (F := Ideal)) V (no_index (Proc.devRef .tc main_v10183)) = stepY 508 (by decide) (V (Proc.devRef .tc main_arg3)) (stepH 508 (by decide) (V (Proc.devRef .tc main_arg0)) (V (Proc.devRef .tc main_v3)) (V (Proc.devRef .tc main_arg2)) (V (Proc.devRef .tc main_v10155))) (V (Proc.devRef .tc main_v10163)) := by
  simp only [stepOps508]
  after_results_simp
  first | exact ⟨rfl, rfl⟩ | fail "value"
/-- Step 509 of the loop: operations 11205 … 11226 of the program. -/
abbrev stepOps509 : List (HloOp τ sig (Elt F)) :=
  [ unary main_v3 main_v10184 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10175 main_v10184 main_v10185 (mulf : (⟨S4x256x16, .f32⟩ : BufTy).Contents (Elt F) → (⟨S4x256x16, .f32⟩ : BufTy).Contents (Elt F) → (⟨S4x256x16, .f32⟩ : BufTy).Contents (Elt F)),
    unary main_arg0 main_v10186 ((extractStridedSlice S4x1x256 ![0, 509, 0] · slices_S4x512x256_S4x1x256_0_509_0) : (⟨S4x512x256, .f32⟩ : BufTy).Contents (Elt F) → (⟨S4x1x256, .f32⟩ : BufTy).Contents (Elt F)),
    reshape main_v10186 main_v10187 rfl shapeCasts_S4x1x256_S4x256,
    unary main_v10187 main_v10188 (broadcastInDim S4x256x1 ![0, 1] bcast_S4x256_S4x256x1_0_1 : (⟨S4x256, .f32⟩ : BufTy).Contents (Elt F) → (⟨S4x256x1, .f32⟩ : BufTy).Contents (Elt F)),
    unary main_arg2 main_v10189 ((extractStridedSlice S4x1x16 ![0, 509, 0] · slices_S4x512x16_S4x1x16_0_509_0) : (⟨S4x512x16, .f32⟩ : BufTy).Contents (Elt F) → (⟨S4x1x16, .f32⟩ : BufTy).Contents (Elt F)),
    reshape main_v10189 main_v10190 rfl shapeCasts_S4x1x16_S4x16,
    unary main_v10190 main_v10191 (broadcastInDim S4x1x16 ![0, 2] bcast_S4x16_S4x1x16_0_2 : (⟨S4x16, .f32⟩ : BufTy).Contents (Elt F) → (⟨S4x1x16, .f32⟩ : BufTy).Contents (Elt F)),
    unary main_v10188 main_v10192 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10191 main_v10193 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10192 main_v10193 main_v10194 (mulf : (⟨S4x256x16, .f32⟩ : BufTy).Contents (Elt F) → (⟨S4x256x16, .f32⟩ : BufTy).Contents (Elt F) → (⟨S4x256x16, .f32⟩ : BufTy).Contents (Elt F)),
    binary main_v10185 main_v10194 main_v10195 (addf : (⟨S4x256x16, .f32⟩ : BufTy).Contents (Elt F) → (⟨S4x256x16, .f32⟩ : BufTy).Contents (Elt F) → (⟨S4x256x16, .f32⟩ : BufTy).Contents (Elt F)),
    unary main_arg3 main_v10196 ((extractStridedSlice S4x1x16 ![0, 509, 0] · slices_S4x512x16_S4x1x16_0_509_0) : (⟨S4x512x16, .f32⟩ : BufTy).Contents (Elt F) → (⟨S4x1x16, .f32⟩ : BufTy).Contents (Elt F)),
    reshape main_v10196 main_v10197 rfl shapeCasts_S4x1x16_S4x16,
    unary main_v10197 main_v10198 (broadcastInDim S4x1x16 ![0, 2] bcast_S4x16_S4x1x16_0_2 : (⟨S4x16, .f32⟩ : BufTy).Contents (Elt F) → (⟨S4x1x16, .f32⟩ : BufTy).Contents (Elt F)),
    unary main_v10198 main_v10199 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10195 main_v10199 main_v10200 (mulf : (⟨S4x256x16, .f32⟩ : BufTy).Contents (Elt F) → (⟨S4x256x16, .f32⟩ : BufTy).Contents (Elt F) → (⟨S4x256x16, .f32⟩ : BufTy).Contents (Elt F)),
    nullary main_cst_1018 (constant S_ .f32 0x00000000#32),
    binary main_v10200 main_cst_1018 main_v10201 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1019 (constantI S_ 32 509#32),
    unary main_c_1019 main_v10202 (broadcastInDim S1 ![] bcast_S_S1 : (⟨S_, .i32⟩ : BufTy).Contents (Elt F) → (⟨S1, .i32⟩ : BufTy).Contents (Elt F)),
    ternary main_v10183 main_v10202 main_v10201 main_v10203 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps509_ok : (stepOps509 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step509_val (V : Valuation τ sig (Elt Ideal)) :
    after (stepOps509 (F := Ideal)) V (no_index (Proc.devRef .tc main_v10195)) = stepH 509 (by decide) (V (Proc.devRef .tc main_arg0)) (V (Proc.devRef .tc main_v3)) (V (Proc.devRef .tc main_arg2)) (V (Proc.devRef .tc main_v10175))
    ∧ after (stepOps509 (F := Ideal)) V (no_index (Proc.devRef .tc main_v10203)) = stepY 509 (by decide) (V (Proc.devRef .tc main_arg3)) (stepH 509 (by decide) (V (Proc.devRef .tc main_arg0)) (V (Proc.devRef .tc main_v3)) (V (Proc.devRef .tc main_arg2)) (V (Proc.devRef .tc main_v10175))) (V (Proc.devRef .tc main_v10183)) := by
  simp only [stepOps509]
  after_results_simp
  first | exact ⟨rfl, rfl⟩ | fail "value"
/-- Step 510 of the loop: operations 11227 … 11248 of the program. -/
abbrev stepOps510 : List (HloOp τ sig (Elt F)) :=
  [ unary main_v3 main_v10204 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10195 main_v10204 main_v10205 (mulf : (⟨S4x256x16, .f32⟩ : BufTy).Contents (Elt F) → (⟨S4x256x16, .f32⟩ : BufTy).Contents (Elt F) → (⟨S4x256x16, .f32⟩ : BufTy).Contents (Elt F)),
    unary main_arg0 main_v10206 ((extractStridedSlice S4x1x256 ![0, 510, 0] · slices_S4x512x256_S4x1x256_0_510_0) : (⟨S4x512x256, .f32⟩ : BufTy).Contents (Elt F) → (⟨S4x1x256, .f32⟩ : BufTy).Contents (Elt F)),
    reshape main_v10206 main_v10207 rfl shapeCasts_S4x1x256_S4x256,
    unary main_v10207 main_v10208 (broadcastInDim S4x256x1 ![0, 1] bcast_S4x256_S4x256x1_0_1 : (⟨S4x256, .f32⟩ : BufTy).Contents (Elt F) → (⟨S4x256x1, .f32⟩ : BufTy).Contents (Elt F)),
    unary main_arg2 main_v10209 ((extractStridedSlice S4x1x16 ![0, 510, 0] · slices_S4x512x16_S4x1x16_0_510_0) : (⟨S4x512x16, .f32⟩ : BufTy).Contents (Elt F) → (⟨S4x1x16, .f32⟩ : BufTy).Contents (Elt F)),
    reshape main_v10209 main_v10210 rfl shapeCasts_S4x1x16_S4x16,
    unary main_v10210 main_v10211 (broadcastInDim S4x1x16 ![0, 2] bcast_S4x16_S4x1x16_0_2 : (⟨S4x16, .f32⟩ : BufTy).Contents (Elt F) → (⟨S4x1x16, .f32⟩ : BufTy).Contents (Elt F)),
    unary main_v10208 main_v10212 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10211 main_v10213 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10212 main_v10213 main_v10214 (mulf : (⟨S4x256x16, .f32⟩ : BufTy).Contents (Elt F) → (⟨S4x256x16, .f32⟩ : BufTy).Contents (Elt F) → (⟨S4x256x16, .f32⟩ : BufTy).Contents (Elt F)),
    binary main_v10205 main_v10214 main_v10215 (addf : (⟨S4x256x16, .f32⟩ : BufTy).Contents (Elt F) → (⟨S4x256x16, .f32⟩ : BufTy).Contents (Elt F) → (⟨S4x256x16, .f32⟩ : BufTy).Contents (Elt F)),
    unary main_arg3 main_v10216 ((extractStridedSlice S4x1x16 ![0, 510, 0] · slices_S4x512x16_S4x1x16_0_510_0) : (⟨S4x512x16, .f32⟩ : BufTy).Contents (Elt F) → (⟨S4x1x16, .f32⟩ : BufTy).Contents (Elt F)),
    reshape main_v10216 main_v10217 rfl shapeCasts_S4x1x16_S4x16,
    unary main_v10217 main_v10218 (broadcastInDim S4x1x16 ![0, 2] bcast_S4x16_S4x1x16_0_2 : (⟨S4x16, .f32⟩ : BufTy).Contents (Elt F) → (⟨S4x1x16, .f32⟩ : BufTy).Contents (Elt F)),
    unary main_v10218 main_v10219 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10215 main_v10219 main_v10220 (mulf : (⟨S4x256x16, .f32⟩ : BufTy).Contents (Elt F) → (⟨S4x256x16, .f32⟩ : BufTy).Contents (Elt F) → (⟨S4x256x16, .f32⟩ : BufTy).Contents (Elt F)),
    nullary main_cst_1020 (constant S_ .f32 0x00000000#32),
    binary main_v10220 main_cst_1020 main_v10221 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1021 (constantI S_ 32 510#32),
    unary main_c_1021 main_v10222 (broadcastInDim S1 ![] bcast_S_S1 : (⟨S_, .i32⟩ : BufTy).Contents (Elt F) → (⟨S1, .i32⟩ : BufTy).Contents (Elt F)),
    ternary main_v10203 main_v10222 main_v10221 main_v10223 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps510_ok : (stepOps510 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step510_val (V : Valuation τ sig (Elt Ideal)) :
    after (stepOps510 (F := Ideal)) V (no_index (Proc.devRef .tc main_v10215)) = stepH 510 (by decide) (V (Proc.devRef .tc main_arg0)) (V (Proc.devRef .tc main_v3)) (V (Proc.devRef .tc main_arg2)) (V (Proc.devRef .tc main_v10195))
    ∧ after (stepOps510 (F := Ideal)) V (no_index (Proc.devRef .tc main_v10223)) = stepY 510 (by decide) (V (Proc.devRef .tc main_arg3)) (stepH 510 (by decide) (V (Proc.devRef .tc main_arg0)) (V (Proc.devRef .tc main_v3)) (V (Proc.devRef .tc main_arg2)) (V (Proc.devRef .tc main_v10195))) (V (Proc.devRef .tc main_v10203)) := by
  simp only [stepOps510]
  after_results_simp
  first | exact ⟨rfl, rfl⟩ | fail "value"
/-- Step 511 of the loop: operations 11249 … 11270 of the program. -/
abbrev stepOps511 : List (HloOp τ sig (Elt F)) :=
  [ unary main_v3 main_v10224 (broadcastInDim S4x256x16 ![0, 1, 2] bcast_S1x256x16_S4x256x16_0_1_2 : (⟨S1x256x16, .f32⟩ : BufTy).Contents (Elt F) → (⟨S4x256x16, .f32⟩ : BufTy).Contents (Elt F)),
    binary main_v10215 main_v10224 main_v10225 (mulf : (⟨S4x256x16, .f32⟩ : BufTy).Contents (Elt F) → (⟨S4x256x16, .f32⟩ : BufTy).Contents (Elt F) → (⟨S4x256x16, .f32⟩ : BufTy).Contents (Elt F)),
    unary main_arg0 main_v10226 ((extractStridedSlice S4x1x256 ![0, 511, 0] · slices_S4x512x256_S4x1x256_0_511_0) : (⟨S4x512x256, .f32⟩ : BufTy).Contents (Elt F) → (⟨S4x1x256, .f32⟩ : BufTy).Contents (Elt F)),
    reshape main_v10226 main_v10227 rfl shapeCasts_S4x1x256_S4x256,
    unary main_v10227 main_v10228 (broadcastInDim S4x256x1 ![0, 1] bcast_S4x256_S4x256x1_0_1 : (⟨S4x256, .f32⟩ : BufTy).Contents (Elt F) → (⟨S4x256x1, .f32⟩ : BufTy).Contents (Elt F)),
    unary main_arg2 main_v10229 ((extractStridedSlice S4x1x16 ![0, 511, 0] · slices_S4x512x16_S4x1x16_0_511_0) : (⟨S4x512x16, .f32⟩ : BufTy).Contents (Elt F) → (⟨S4x1x16, .f32⟩ : BufTy).Contents (Elt F)),
    reshape main_v10229 main_v10230 rfl shapeCasts_S4x1x16_S4x16,
    unary main_v10230 main_v10231 (broadcastInDim S4x1x16 ![0, 2] bcast_S4x16_S4x1x16_0_2 : (⟨S4x16, .f32⟩ : BufTy).Contents (Elt F) → (⟨S4x1x16, .f32⟩ : BufTy).Contents (Elt F)),
    unary main_v10228 main_v10232 (broadcastInDim S4x256x16 ![0, 1, 2] bcast_S4x256x1_S4x256x16_0_1_2 : (⟨S4x256x1, .f32⟩ : BufTy).Contents (Elt F) → (⟨S4x256x16, .f32⟩ : BufTy).Contents (Elt F)),
    unary main_v10231 main_v10233 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10232 main_v10233 main_v10234 (mulf : (⟨S4x256x16, .f32⟩ : BufTy).Contents (Elt F) → (⟨S4x256x16, .f32⟩ : BufTy).Contents (Elt F) → (⟨S4x256x16, .f32⟩ : BufTy).Contents (Elt F)),
    binary main_v10225 main_v10234 main_v10235 (addf : (⟨S4x256x16, .f32⟩ : BufTy).Contents (Elt F) → (⟨S4x256x16, .f32⟩ : BufTy).Contents (Elt F) → (⟨S4x256x16, .f32⟩ : BufTy).Contents (Elt F)),
    unary main_arg3 main_v10236 ((extractStridedSlice S4x1x16 ![0, 511, 0] · slices_S4x512x16_S4x1x16_0_511_0) : (⟨S4x512x16, .f32⟩ : BufTy).Contents (Elt F) → (⟨S4x1x16, .f32⟩ : BufTy).Contents (Elt F)),
    reshape main_v10236 main_v10237 rfl shapeCasts_S4x1x16_S4x16,
    unary main_v10237 main_v10238 (broadcastInDim S4x1x16 ![0, 2] bcast_S4x16_S4x1x16_0_2 : (⟨S4x16, .f32⟩ : BufTy).Contents (Elt F) → (⟨S4x1x16, .f32⟩ : BufTy).Contents (Elt F)),
    unary main_v10238 main_v10239 (broadcastInDim S4x256x16 ![0, 1, 2] bcast_S4x1x16_S4x256x16_0_1_2 : (⟨S4x1x16, .f32⟩ : BufTy).Contents (Elt F) → (⟨S4x256x16, .f32⟩ : BufTy).Contents (Elt F)),
    binary main_v10235 main_v10239 main_v10240 (mulf : (⟨S4x256x16, .f32⟩ : BufTy).Contents (Elt F) → (⟨S4x256x16, .f32⟩ : BufTy).Contents (Elt F) → (⟨S4x256x16, .f32⟩ : BufTy).Contents (Elt F)),
    nullary main_cst_1022 (constant S_ .f32 0x00000000#32),
    binary main_v10240 main_cst_1022 main_v10241 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F)),
    nullary main_c_1023 (constantI S_ 32 511#32),
    unary main_c_1023 main_v10242 (broadcastInDim S1 ![] bcast_S_S1 : (⟨S_, .i32⟩ : BufTy).Contents (Elt F) → (⟨S1, .i32⟩ : BufTy).Contents (Elt F)),
    ternary main_v10223 main_v10242 main_v10241 main_v10243 ((fun x i u => Host.scatter scatter_S4x512x256_S1_S4x256_01_1_1_0 (fun _ b => b) x i u) : (⟨S4x512x256, .f32⟩ : BufTy).Contents (Elt F) → (⟨S1, .i32⟩ : BufTy).Contents (Elt F) → (⟨S4x256, .f32⟩ : BufTy).Contents (Elt F) → (⟨S4x512x256, .f32⟩ : BufTy).Contents (Elt F)) ]
theorem stepOps511_ok : (stepOps511 : List (HloOp τ sig (Elt F))).Forall (OpOk 10) :=
  ⟨unary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., unary_ok (n := 10) (hn := by decide +kernel) .., binary_ok (n := 10) (hn := by decide +kernel) .., binary_ok (n := 10) (hn := by decide +kernel) .., unary_ok (n := 10) (hn := by decide +kernel) .., reshape_ok (n := 10) (hn := by decide +kernel) .., unary_ok (n := 10) (hn := by decide +kernel) .., unary_ok (n := 10) (hn := by decide +kernel) .., binary_ok (n := 10) (hn := by decide +kernel) .., nullary_ok (n := 10) (hn := by decide +kernel) .., binary_ok (n := 10) (hn := by decide +kernel) .., nullary_ok (n := 10) (hn := by decide +kernel) .., unary_ok (n := 10) (hn := by decide +kernel) .., ternary_ok (n := 10) (hn := by decide +kernel) ..⟩
theorem step511_val (V : Valuation τ sig (Elt Ideal)) :
    after (stepOps511 (F := Ideal)) V (no_index (Proc.devRef .tc main_v10235)) = stepH 511 (by decide) (V (Proc.devRef .tc main_arg0)) (V (Proc.devRef .tc main_v3)) (V (Proc.devRef .tc main_arg2)) (V (Proc.devRef .tc main_v10215))
    ∧ after (stepOps511 (F := Ideal)) V (no_index (Proc.devRef .tc main_v10243)) = stepY 511 (by decide) (V (Proc.devRef .tc main_arg3)) (stepH 511 (by decide) (V (Proc.devRef .tc main_arg0)) (V (Proc.devRef .tc main_v3)) (V (Proc.devRef .tc main_arg2)) (V (Proc.devRef .tc main_v10215))) (V (Proc.devRef .tc main_v10223)) := by
  simp only [stepOps511]
  after_results_simp
  first | exact ⟨rfl, rfl⟩ | fail "value"

end Cert.ReferenceIdeal.RefRun

end
-- ==== Proof.RefTableTail.lean ====
/-
  The whole list of the reference's operations, by named suffixes: opsFrom t is the operations of the loop steps t, t + 1, …;
  ops is all of them. Each suffix only touches buffers of the core, and determines what it writes.
-/
import proofs.«900482_g7700000000000483_dist_ssm_v7x_xy2x2_y_b4_s256_d256_n16_f32_1_alg».proof.Proof.RefTableStep00
import proofs.«900482_g7700000000000483_dist_ssm_v7x_xy2x2_y_b4_s256_d256_n16_f32_1_alg».proof.Proof.RefTableStep01
import proofs.«900482_g7700000000000483_dist_ssm_v7x_xy2x2_y_b4_s256_d256_n16_f32_1_alg».proof.Proof.RefTableStep02
import proofs.«900482_g7700000000000483_dist_ssm_v7x_xy2x2_y_b4_s256_d256_n16_f32_1_alg».proof.Proof.RefTableStep03
import proofs.«900482_g7700000000000483_dist_ssm_v7x_xy2x2_y_b4_s256_d256_n16_f32_1_alg».proof.Proof.RefTableStep04
import proofs.«900482_g7700000000000483_dist_ssm_v7x_xy2x2_y_b4_s256_d256_n16_f32_1_alg».proof.Proof.RefTableStep05
import proofs.«900482_g7700000000000483_dist_ssm_v7x_xy2x2_y_b4_s256_d256_n16_f32_1_alg».proof.Proof.RefTableStep06
import proofs.«900482_g7700000000000483_dist_ssm_v7x_xy2x2_y_b4_s256_d256_n16_f32_1_alg».proof.Proof.RefTableStep07
import proofs.«900482_g7700000000000483_dist_ssm_v7x_xy2x2_y_b4_s256_d256_n16_f32_1_alg».proof.Proof.RefTableStep08
import proofs.«900482_g7700000000000483_dist_ssm_v7x_xy2x2_y_b4_s256_d256_n16_f32_1_alg».proof.Proof.RefTableStep09
import proofs.«900482_g7700000000000483_dist_ssm_v7x_xy2x2_y_b4_s256_d256_n16_f32_1_alg».proof.Proof.RefTableStep10
import proofs.«900482_g7700000000000483_dist_ssm_v7x_xy2x2_y_b4_s256_d256_n16_f32_1_alg».proof.Proof.RefTableStep11
import proofs.«900482_g7700000000000483_dist_ssm_v7x_xy2x2_y_b4_s256_d256_n16_f32_1_alg».proof.Proof.RefTableStep12
import proofs.«900482_g7700000000000483_dist_ssm_v7x_xy2x2_y_b4_s256_d256_n16_f32_1_alg».proof.Proof.RefTableStep13
import proofs.«900482_g7700000000000483_dist_ssm_v7x_xy2x2_y_b4_s256_d256_n16_f32_1_alg».proof.Proof.RefTableStep14
import proofs.«900482_g7700000000000483_dist_ssm_v7x_xy2x2_y_b4_s256_d256_n16_f32_1_alg».proof.Proof.RefTableStep15
import proofs.«900482_g7700000000000483_dist_ssm_v7x_xy2x2_y_b4_s256_d256_n16_f32_1_alg».proof.Proof.RefTableStep16
import proofs.«900482_g7700000000000483_dist_ssm_v7x_xy2x2_y_b4_s256_d256_n16_f32_1_alg».proof.Proof.RefTableStep17
import proofs.«900482_g7700000000000483_dist_ssm_v7x_xy2x2_y_b4_s256_d256_n16_f32_1_alg».proof.Proof.RefTableStep18
import proofs.«900482_g7700000000000483_dist_ssm_v7x_xy2x2_y_b4_s256_d256_n16_f32_1_alg».proof.Proof.RefTableStep19
import proofs.«900482_g7700000000000483_dist_ssm_v7x_xy2x2_y_b4_s256_d256_n16_f32_1_alg».proof.Proof.RefTableStep20
import proofs.«900482_g7700000000000483_dist_ssm_v7x_xy2x2_y_b4_s256_d256_n16_f32_1_alg».proof.Proof.RefTableStep21
import proofs.«900482_g7700000000000483_dist_ssm_v7x_xy2x2_y_b4_s256_d256_n16_f32_1_alg».proof.Proof.RefTableStep22
import proofs.«900482_g7700000000000483_dist_ssm_v7x_xy2x2_y_b4_s256_d256_n16_f32_1_alg».proof.Proof.RefTableStep23
import proofs.«900482_g7700000000000483_dist_ssm_v7x_xy2x2_y_b4_s256_d256_n16_f32_1_alg».proof.Proof.RefTableStep24
import proofs.«900482_g7700000000000483_dist_ssm_v7x_xy2x2_y_b4_s256_d256_n16_f32_1_alg».proof.Proof.RefTableStep25
import proofs.«900482_g7700000000000483_dist_ssm_v7x_xy2x2_y_b4_s256_d256_n16_f32_1_alg».proof.Proof.RefTableStep26
import proofs.«900482_g7700000000000483_dist_ssm_v7x_xy2x2_y_b4_s256_d256_n16_f32_1_alg».proof.Proof.RefTableStep27
import proofs.«900482_g7700000000000483_dist_ssm_v7x_xy2x2_y_b4_s256_d256_n16_f32_1_alg».proof.Proof.RefTableStep28
import proofs.«900482_g7700000000000483_dist_ssm_v7x_xy2x2_y_b4_s256_d256_n16_f32_1_alg».proof.Proof.RefTableStep29
import proofs.«900482_g7700000000000483_dist_ssm_v7x_xy2x2_y_b4_s256_d256_n16_f32_1_alg».proof.Proof.RefTableStep30
import proofs.«900482_g7700000000000483_dist_ssm_v7x_xy2x2_y_b4_s256_d256_n16_f32_1_alg».proof.Proof.RefTableStep31
import proofs.«900482_g7700000000000483_dist_ssm_v7x_xy2x2_y_b4_s256_d256_n16_f32_1_alg».proof.Proof.RefRunLib
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsFrom511 : List (HloOp τ sig (Elt F)) := stepOps511
theorem opsFrom511_ok : (opsFrom511 : List (HloOp τ sig (Elt F))).Forall (OpOk 10) := stepOps511_ok
theorem after_opsFrom511 (V : Valuation τ sig (Elt F)) : after (opsFrom511 : List (HloOp τ sig (Elt F))) V = after stepOps511 V := rfl
abbrev opsFrom510 : List (HloOp τ sig (Elt F)) := stepOps510 ++ opsFrom511
theorem opsFrom510_ok : (opsFrom510 : List (HloOp τ sig (Elt F))).Forall (OpOk 10) := List.forall_append.mpr ⟨stepOps510_ok, opsFrom511_ok⟩
theorem after_opsFrom510 (V : Valuation τ sig (Elt F)) : after (opsFrom510 : List (HloOp τ sig (Elt F))) V = after opsFrom511 (after stepOps510 V) := after_append _ _ V
abbrev opsFrom509 : List (HloOp τ sig (Elt F)) := stepOps509 ++ opsFrom510
theorem opsFrom509_ok : (opsFrom509 : List (HloOp τ sig (Elt F))).Forall (OpOk 10) := List.forall_append.mpr ⟨stepOps509_ok, opsFrom510_ok⟩
theorem after_opsFrom509 (V : Valuation τ sig (Elt F)) : after (opsFrom509 : List (HloOp τ sig (Elt F))) V = after opsFrom510 (after stepOps509 V) := after_append _ _ V
abbrev opsFrom508 : List (HloOp τ sig (Elt F)) := stepOps508 ++ opsFrom509
theorem opsFrom508_ok : (opsFrom508 : List (HloOp τ sig (Elt F))).Forall (OpOk 10) := List.forall_append.mpr ⟨stepOps508_ok, opsFrom509_ok⟩
theorem after_opsFrom508 (V : Valuation τ sig (Elt F)) : after (opsFrom508 : List (HloOp τ sig (Elt F))) V = after opsFrom509 (after stepOps508 V) := after_append _ _ V
abbrev opsFrom507 : List (HloOp τ sig (Elt F)) := stepOps507 ++ opsFrom508
theorem opsFrom507_ok : (opsFrom507 : List (HloOp τ sig (Elt F))).Forall (OpOk 10) := List.forall_append.mpr ⟨stepOps507_ok, opsFrom508_ok⟩
theorem after_opsFrom507 (V : Valuation τ sig (Elt F)) : after (opsFrom507 : List (HloOp τ sig (Elt F))) V = after opsFrom508 (after stepOps507 V) := after_append _ _ V
abbrev opsFrom506 : List (HloOp τ sig (Elt F)) := stepOps506 ++ opsFrom507
theorem opsFrom506_ok : (opsFrom506 : List (HloOp τ sig (Elt F))).Forall (OpOk 10) := List.forall_append.mpr ⟨stepOps506_ok, opsFrom507_ok⟩
theorem after_opsFrom506 (V : Valuation τ sig (Elt F)) : after (opsFrom506 : List (HloOp τ sig (Elt F))) V = after opsFrom507 (after stepOps506 V) := after_append _ _ V
abbrev opsFrom505 : List (HloOp τ sig (Elt F)) := stepOps505 ++ opsFrom506
theorem opsFrom505_ok : (opsFrom505 : List (HloOp τ sig (Elt F))).Forall (OpOk 10) := List.forall_append.mpr ⟨stepOps505_ok, opsFrom506_ok⟩
theorem after_opsFrom505 (V : Valuation τ sig (Elt F)) : after (opsFrom505 : List (HloOp τ sig (Elt F))) V = after opsFrom506 (after stepOps505 V) := after_append _ _ V
abbrev opsFrom504 : List (HloOp τ sig (Elt F)) := stepOps504 ++ opsFrom505
theorem opsFrom504_ok : (opsFrom504 : List (HloOp τ sig (Elt F))).Forall (OpOk 10) := List.forall_append.mpr ⟨stepOps504_ok, opsFrom505_ok⟩
theorem after_opsFrom504 (V : Valuation τ sig (Elt F)) : after (opsFrom504 : List (HloOp τ sig (Elt F))) V = after opsFrom505 (after stepOps504 V) := after_append _ _ V
abbrev opsFrom503 : List (HloOp τ sig (Elt F)) := stepOps503 ++ opsFrom504
theorem opsFrom503_ok : (opsFrom503 : List (HloOp τ sig (Elt F))).Forall (OpOk 10) := List.forall_append.mpr ⟨stepOps503_ok, opsFrom504_ok⟩
theorem after_opsFrom503 (V : Valuation τ sig (Elt F)) : after (opsFrom503 : List (HloOp τ sig (Elt F))) V = after opsFrom504 (after stepOps503 V) := after_append _ _ V
abbrev opsFrom502 : List (HloOp τ sig (Elt F)) := stepOps502 ++ opsFrom503
theorem opsFrom502_ok : (opsFrom502 : List (HloOp τ sig (Elt F))).Forall (OpOk 10) := List.forall_append.mpr ⟨stepOps502_ok, opsFrom503_ok⟩
theorem after_opsFrom502 (V : Valuation τ sig (Elt F)) : after (opsFrom502 : List (HloOp τ sig (Elt F))) V = after opsFrom503 (after stepOps502 V) := after_append _ _ V
abbrev opsFrom501 : List (HloOp τ sig (Elt F)) := stepOps501 ++ opsFrom502
theorem opsFrom501_ok : (opsFrom501 : List (HloOp τ sig (Elt F))).Forall (OpOk 10) := List.forall_append.mpr ⟨stepOps501_ok, opsFrom502_ok⟩
theorem after_opsFrom501 (V : Valuation τ sig (Elt F)) : after (opsFrom501 : List (HloOp τ sig (Elt F))) V = after opsFrom502 (after stepOps501 V) := after_append _ _ V
abbrev opsFrom500 : List (HloOp τ sig (Elt F)) := stepOps500 ++ opsFrom501
theorem opsFrom500_ok : (opsFrom500 : List (HloOp τ sig (Elt F))).Forall (OpOk 10) := List.forall_append.mpr ⟨stepOps500_ok, opsFrom501_ok⟩
theorem after_opsFrom500 (V : Valuation τ sig (Elt F)) : after (opsFrom500 : List (HloOp τ sig (Elt F))) V = after opsFrom501 (after stepOps500 V) := after_append _ _ V
abbrev opsFrom499 : List (HloOp τ sig (Elt F)) := stepOps499 ++ opsFrom500
theorem opsFrom499_ok : (opsFrom499 : List (HloOp τ sig (Elt F))).Forall (OpOk 10) := List.forall_append.mpr ⟨stepOps499_ok, opsFrom500_ok⟩
theorem after_opsFrom499 (V : Valuation τ sig (Elt F)) : after (opsFrom499 : List (HloOp τ sig (Elt F))) V = after opsFrom500 (after stepOps499 V) := after_append _ _ V
abbrev opsFrom498 : List (HloOp τ sig (Elt F)) := stepOps498 ++ opsFrom499
theorem opsFrom498_ok : (opsFrom498 : List (HloOp τ sig (Elt F))).Forall (OpOk 10) := List.forall_append.mpr ⟨stepOps498_ok, opsFrom499_ok⟩
theorem after_opsFrom498 (V : Valuation τ sig (Elt F)) : after (opsFrom498 : List (HloOp τ sig (Elt F))) V = after opsFrom499 (after stepOps498 V) := after_append _ _ V
abbrev opsFrom497 : List (HloOp τ sig (Elt F)) := stepOps497 ++ opsFrom498
theorem opsFrom497_ok : (opsFrom497 : List (HloOp τ sig (Elt F))).Forall (OpOk 10) := List.forall_append.mpr ⟨stepOps497_ok, opsFrom498_ok⟩
theorem after_opsFrom497 (V : Valuation τ sig (Elt F)) : after (opsFrom497 : List (HloOp τ sig (Elt F))) V = after opsFrom498 (after stepOps497 V) := after_append _ _ V
abbrev opsFrom496 : List (HloOp τ sig (Elt F)) := stepOps496 ++ opsFrom497
theorem opsFrom496_ok : (opsFrom496 : List (HloOp τ sig (Elt F))).Forall (OpOk 10) := List.forall_append.mpr ⟨stepOps496_ok, opsFrom497_ok⟩
theorem after_opsFrom496 (V : Valuation τ sig (Elt F)) : after (opsFrom496 : List (HloOp τ sig (Elt F))) V = after opsFrom497 (after stepOps496 V) := after_append _ _ V
abbrev opsFrom495 : List (HloOp τ sig (Elt F)) := stepOps495 ++ opsFrom496
theorem opsFrom495_ok : (opsFrom495 : List (HloOp τ sig (Elt F))).Forall (OpOk 10) := List.forall_append.mpr ⟨stepOps495_ok, opsFrom496_ok⟩
theorem after_opsFrom495 (V : Valuation τ sig (Elt F)) : after (opsFrom495 : List (HloOp τ sig (Elt F))) V = after opsFrom496 (after stepOps495 V) := after_append _ _ V
abbrev opsFrom494 : List (HloOp τ sig (Elt F)) := stepOps494 ++ opsFrom495
theorem opsFrom494_ok : (opsFrom494 : List (HloOp τ sig (Elt F))).Forall (OpOk 10) := List.forall_append.mpr ⟨stepOps494_ok, opsFrom495_ok⟩
theorem after_opsFrom494 (V : Valuation τ sig (Elt F)) : after (opsFrom494 : List (HloOp τ sig (Elt F))) V = after opsFrom495 (after stepOps494 V) := after_append _ _ V
abbrev opsFrom493 : List (HloOp τ sig (Elt F)) := stepOps493 ++ opsFrom494
theorem opsFrom493_ok : (opsFrom493 : List (HloOp τ sig (Elt F))).Forall (OpOk 10) := List.forall_append.mpr ⟨stepOps493_ok, opsFrom494_ok⟩
theorem after_opsFrom493 (V : Valuation τ sig (Elt F)) : after (opsFrom493 : List (HloOp τ sig (Elt F))) V = after opsFrom494 (after stepOps493 V) := after_append _ _ V
abbrev opsFrom492 : List (HloOp τ sig (Elt F)) := stepOps492 ++ opsFrom493
theorem opsFrom492_ok : (opsFrom492 : List (HloOp τ sig (Elt F))).Forall (OpOk 10) := List.forall_append.mpr ⟨stepOps492_ok, opsFrom493_ok⟩
theorem after_opsFrom492 (V : Valuation τ sig (Elt F)) : after (opsFrom492 : List (HloOp τ sig (Elt F))) V = after opsFrom493 (after stepOps492 V) := after_append _ _ V
abbrev opsFrom491 : List (HloOp τ sig (Elt F)) := stepOps491 ++ opsFrom492
theorem opsFrom491_ok : (opsFrom491 : List (HloOp τ sig (Elt F))).Forall (OpOk 10) := List.forall_append.mpr ⟨stepOps491_ok, opsFrom492_ok⟩
theorem after_opsFrom491 (V : Valuation τ sig (Elt F)) : after (opsFrom491 : List (HloOp τ sig (Elt F))) V = after opsFrom492 (after stepOps491 V) := after_append _ _ V
abbrev opsFrom490 : List (HloOp τ sig (Elt F)) := stepOps490 ++ opsFrom491
theorem opsFrom490_ok : (opsFrom490 : List (HloOp τ sig (Elt F))).Forall (OpOk 10) := List.forall_append.mpr ⟨stepOps490_ok, opsFrom491_ok⟩
theorem after_opsFrom490 (V : Valuation τ sig (Elt F)) : after (opsFrom490 : List (HloOp τ sig (Elt F))) V = after opsFrom491 (after stepOps490 V) := after_append _ _ V
abbrev opsFrom489 : List (HloOp τ sig (Elt F)) := stepOps489 ++ opsFrom490
theorem opsFrom489_ok : (opsFrom489 : List (HloOp τ sig (Elt F))).Forall (OpOk 10) := List.forall_append.mpr ⟨stepOps489_ok, opsFrom490_ok⟩
theorem after_opsFrom489 (V : Valuation τ sig (Elt F)) : after (opsFrom489 : List (HloOp τ sig (Elt F))) V = after opsFrom490 (after stepOps489 V) := after_append _ _ V
abbrev opsFrom488 : List (HloOp τ sig (Elt F)) := stepOps488 ++ opsFrom489
theorem opsFrom488_ok : (opsFrom488 : List (HloOp τ sig (Elt F))).Forall (OpOk 10) := List.forall_append.mpr ⟨stepOps488_ok, opsFrom489_ok⟩
theorem after_opsFrom488 (V : Valuation τ sig (Elt F)) : after (opsFrom488 : List (HloOp τ sig (Elt F))) V = after opsFrom489 (after stepOps488 V) := after_append _ _ V
abbrev opsFrom487 : List (HloOp τ sig (Elt F)) := stepOps487 ++ opsFrom488
theorem opsFrom487_ok : (opsFrom487 : List (HloOp τ sig (Elt F))).Forall (OpOk 10) := List.forall_append.mpr ⟨stepOps487_ok, opsFrom488_ok⟩
theorem after_opsFrom487 (V : Valuation τ sig (Elt F)) : after (opsFrom487 : List (HloOp τ sig (Elt F))) V = after opsFrom488 (after stepOps487 V) := after_append _ _ V
abbrev opsFrom486 : List (HloOp τ sig (Elt F)) := stepOps486 ++ opsFrom487
theorem opsFrom486_ok : (opsFrom486 : List (HloOp τ sig (Elt F))).Forall (OpOk 10) := List.forall_append.mpr ⟨stepOps486_ok, opsFrom487_ok⟩
theorem after_opsFrom486 (V : Valuation τ sig (Elt F)) : after (opsFrom486 : List (HloOp τ sig (Elt F))) V = after opsFrom487 (after stepOps486 V) := after_append _ _ V
abbrev opsFrom485 : List (HloOp τ sig (Elt F)) := stepOps485 ++ opsFrom486
theorem opsFrom485_ok : (opsFrom485 : List (HloOp τ sig (Elt F))).Forall (OpOk 10) := List.forall_append.mpr ⟨stepOps485_ok, opsFrom486_ok⟩
theorem after_opsFrom485 (V : Valuation τ sig (Elt F)) : after (opsFrom485 : List (HloOp τ sig (Elt F))) V = after opsFrom486 (after stepOps485 V) := after_append _ _ V
abbrev opsFrom484 : List (HloOp τ sig (Elt F)) := stepOps484 ++ opsFrom485
theorem opsFrom484_ok : (opsFrom484 : List (HloOp τ sig (Elt F))).Forall (OpOk 10) := List.forall_append.mpr ⟨stepOps484_ok, opsFrom485_ok⟩
theorem after_opsFrom484 (V : Valuation τ sig (Elt F)) : after (opsFrom484 : List (HloOp τ sig (Elt F))) V = after opsFrom485 (after stepOps484 V) := after_append _ _ V
abbrev opsFrom483 : List (HloOp τ sig (Elt F)) := stepOps483 ++ opsFrom484
theorem opsFrom483_ok : (opsFrom483 : List (HloOp τ sig (Elt F))).Forall (OpOk 10) := List.forall_append.mpr ⟨stepOps483_ok, opsFrom484_ok⟩
theorem after_opsFrom483 (V : Valuation τ sig (Elt F)) : after (opsFrom483 : List (HloOp τ sig (Elt F))) V = after opsFrom484 (after stepOps483 V) := after_append _ _ V
abbrev opsFrom482 : List (HloOp τ sig (Elt F)) := stepOps482 ++ opsFrom483
theorem opsFrom482_ok : (opsFrom482 : List (HloOp τ sig (Elt F))).Forall (OpOk 10) := List.forall_append.mpr ⟨stepOps482_ok, opsFrom483_ok⟩
theorem after_opsFrom482 (V : Valuation τ sig (Elt F)) : after (opsFrom482 : List (HloOp τ sig (Elt F))) V = after opsFrom483 (after stepOps482 V) := after_append _ _ V
abbrev opsFrom481 : List (HloOp τ sig (Elt F)) := stepOps481 ++ opsFrom482
theorem opsFrom481_ok : (opsFrom481 : List (HloOp τ sig (Elt F))).Forall (OpOk 10) := List.forall_append.mpr ⟨stepOps481_ok, opsFrom482_ok⟩
theorem after_opsFrom481 (V : Valuation τ sig (Elt F)) : after (opsFrom481 : List (HloOp τ sig (Elt F))) V = after opsFrom482 (after stepOps481 V) := after_append _ _ V
abbrev opsFrom480 : List (HloOp τ sig (Elt F)) := stepOps480 ++ opsFrom481
theorem opsFrom480_ok : (opsFrom480 : List (HloOp τ sig (Elt F))).Forall (OpOk 10) := List.forall_append.mpr ⟨stepOps480_ok, opsFrom481_ok⟩
theorem after_opsFrom480 (V : Valuation τ sig (Elt F)) : after (opsFrom480 : List (HloOp τ sig (Elt F))) V = after opsFrom481 (after stepOps480 V) := after_append _ _ V
abbrev opsFrom479 : List (HloOp τ sig (Elt F)) := stepOps479 ++ opsFrom480
theorem opsFrom479_ok : (opsFrom479 : List (HloOp τ sig (Elt F))).Forall (OpOk 10) := List.forall_append.mpr ⟨stepOps479_ok, opsFrom480_ok⟩
theorem after_opsFrom479 (V : Valuation τ sig (Elt F)) : after (opsFrom479 : List (HloOp τ sig (Elt F))) V = after opsFrom480 (after stepOps479 V) := after_append _ _ V
abbrev opsFrom478 : List (HloOp τ sig (Elt F)) := stepOps478 ++ opsFrom479
theorem opsFrom478_ok : (opsFrom478 : List (HloOp τ sig (Elt F))).Forall (OpOk 10) := List.forall_append.mpr ⟨stepOps478_ok, opsFrom479_ok⟩
theorem after_opsFrom478 (V : Valuation τ sig (Elt F)) : after (opsFrom478 : List (HloOp τ sig (Elt F))) V = after opsFrom479 (after stepOps478 V) := after_append _ _ V
abbrev opsFrom477 : List (HloOp τ sig (Elt F)) := stepOps477 ++ opsFrom478
theorem opsFrom477_ok : (opsFrom477 : List (HloOp τ sig (Elt F))).Forall (OpOk 10) := List.forall_append.mpr ⟨stepOps477_ok, opsFrom478_ok⟩
theorem after_opsFrom477 (V : Valuation τ sig (Elt F)) : after (opsFrom477 : List (HloOp τ sig (Elt F))) V = after opsFrom478 (after stepOps477 V) := after_append _ _ V
abbrev opsFrom476 : List (HloOp τ sig (Elt F)) := stepOps476 ++ opsFrom477
theorem opsFrom476_ok : (opsFrom476 : List (HloOp τ sig (Elt F))).Forall (OpOk 10) := List.forall_append.mpr ⟨stepOps476_ok, opsFrom477_ok⟩
theorem after_opsFrom476 (V : Valuation τ sig (Elt F)) : after (opsFrom476 : List (HloOp τ sig (Elt F))) V = after opsFrom477 (after stepOps476 V) := after_append _ _ V
abbrev opsFrom475 : List (HloOp τ sig (Elt F)) := stepOps475 ++ opsFrom476
theorem opsFrom475_ok : (opsFrom475 : List (HloOp τ sig (Elt F))).Forall (OpOk 10) := List.forall_append.mpr ⟨stepOps475_ok, opsFrom476_ok⟩
theorem after_opsFrom475 (V : Valuation τ sig (Elt F)) : after (opsFrom475 : List (HloOp τ sig (Elt F))) V = after opsFrom476 (after stepOps475 V) := after_append _ _ V
abbrev opsFrom474 : List (HloOp τ sig (Elt F)) := stepOps474 ++ opsFrom475
theorem opsFrom474_ok : (opsFrom474 : List (HloOp τ sig (Elt F))).Forall (OpOk 10) := List.forall_append.mpr ⟨stepOps474_ok, opsFrom475_ok⟩
theorem after_opsFrom474 (V : Valuation τ sig (Elt F)) : after (opsFrom474 : List (HloOp τ sig (Elt F))) V = after opsFrom475 (after stepOps474 V) := after_append _ _ V
abbrev opsFrom473 : List (HloOp τ sig (Elt F)) := stepOps473 ++ opsFrom474
theorem opsFrom473_ok : (opsFrom473 : List (HloOp τ sig (Elt F))).Forall (OpOk 10) := List.forall_append.mpr ⟨stepOps473_ok, opsFrom474_ok⟩
theorem after_opsFrom473 (V : Valuation τ sig (Elt F)) : after (opsFrom473 : List (HloOp τ sig (Elt F))) V = after opsFrom474 (after stepOps473 V) := after_append _ _ V
abbrev opsFrom472 : List (HloOp τ sig (Elt F)) := stepOps472 ++ opsFrom473
theorem opsFrom472_ok : (opsFrom472 : List (HloOp τ sig (Elt F))).Forall (OpOk 10) := List.forall_append.mpr ⟨stepOps472_ok, opsFrom473_ok⟩
theorem after_opsFrom472 (V : Valuation τ sig (Elt F)) : after (opsFrom472 : List (HloOp τ sig (Elt F))) V = after opsFrom473 (after stepOps472 V) := after_append _ _ V
abbrev opsFrom471 : List (HloOp τ sig (Elt F)) := stepOps471 ++ opsFrom472
theorem opsFrom471_ok : (opsFrom471 : List (HloOp τ sig (Elt F))).Forall (OpOk 10) := List.forall_append.mpr ⟨stepOps471_ok, opsFrom472_ok⟩
theorem after_opsFrom471 (V : Valuation τ sig (Elt F)) : after (opsFrom471 : List (HloOp τ sig (Elt F))) V = after opsFrom472 (after stepOps471 V) := after_append _ _ V
abbrev opsFrom470 : List (HloOp τ sig (Elt F)) := stepOps470 ++ opsFrom471
theorem opsFrom470_ok : (opsFrom470 : List (HloOp τ sig (Elt F))).Forall (OpOk 10) := List.forall_append.mpr ⟨stepOps470_ok, opsFrom471_ok⟩
theorem after_opsFrom470 (V : Valuation τ sig (Elt F)) : after (opsFrom470 : List (HloOp τ sig (Elt F))) V = after opsFrom471 (after stepOps470 V) := after_append _ _ V
abbrev opsFrom469 : List (HloOp τ sig (Elt F)) := stepOps469 ++ opsFrom470
theorem opsFrom469_ok : (opsFrom469 : List (HloOp τ sig (Elt F))).Forall (OpOk 10) := List.forall_append.mpr ⟨stepOps469_ok, opsFrom470_ok⟩
theorem after_opsFrom469 (V : Valuation τ sig (Elt F)) : after (opsFrom469 : List (HloOp τ sig (Elt F))) V = after opsFrom470 (after stepOps469 V) := after_append _ _ V
abbrev opsFrom468 : List (HloOp τ sig (Elt F)) := stepOps468 ++ opsFrom469
theorem opsFrom468_ok : (opsFrom468 : List (HloOp τ sig (Elt F))).Forall (OpOk 10) := List.forall_append.mpr ⟨stepOps468_ok, opsFrom469_ok⟩
theorem after_opsFrom468 (V : Valuation τ sig (Elt F)) : after (opsFrom468 : List (HloOp τ sig (Elt F))) V = after opsFrom469 (after stepOps468 V) := after_append _ _ V
abbrev opsFrom467 : List (HloOp τ sig (Elt F)) := stepOps467 ++ opsFrom468
theorem opsFrom467_ok : (opsFrom467 : List (HloOp τ sig (Elt F))).Forall (OpOk 10) := List.forall_append.mpr ⟨stepOps467_ok, opsFrom468_ok⟩
theorem after_opsFrom467 (V : Valuation τ sig (Elt F)) : after (opsFrom467 : List (HloOp τ sig (Elt F))) V = after opsFrom468 (after stepOps467 V) := after_append _ _ V
abbrev opsFrom466 : List (HloOp τ sig (Elt F)) := stepOps466 ++ opsFrom467
theorem opsFrom466_ok : (opsFrom466 : List (HloOp τ sig (Elt F))).Forall (OpOk 10) := List.forall_append.mpr ⟨stepOps466_ok, opsFrom467_ok⟩
theorem after_opsFrom466 (V : Valuation τ sig (Elt F)) : after (opsFrom466 : List (HloOp τ sig (Elt F))) V = after opsFrom467 (after stepOps466 V) := after_append _ _ V
abbrev opsFrom465 : List (HloOp τ sig (Elt F)) := stepOps465 ++ opsFrom466
theorem opsFrom465_ok : (opsFrom465 : List (HloOp τ sig (Elt F))).Forall (OpOk 10) := List.forall_append.mpr ⟨stepOps465_ok, opsFrom466_ok⟩
theorem after_opsFrom465 (V : Valuation τ sig (Elt F)) : after (opsFrom465 : List (HloOp τ sig (Elt F))) V = after opsFrom466 (after stepOps465 V) := after_append _ _ V
abbrev opsFrom464 : List (HloOp τ sig (Elt F)) := stepOps464 ++ opsFrom465
theorem opsFrom464_ok : (opsFrom464 : List (HloOp τ sig (Elt F))).Forall (OpOk 10) := List.forall_append.mpr ⟨stepOps464_ok, opsFrom465_ok⟩
theorem after_opsFrom464 (V : Valuation τ sig (Elt F)) : after (opsFrom464 : List (HloOp τ sig (Elt F))) V = after opsFrom465 (after stepOps464 V) := after_append _ _ V
abbrev opsFrom463 : List (HloOp τ sig (Elt F)) := stepOps463 ++ opsFrom464
theorem opsFrom463_ok : (opsFrom463 : List (HloOp τ sig (Elt F))).Forall (OpOk 10) := List.forall_append.mpr ⟨stepOps463_ok, opsFrom464_ok⟩
theorem after_opsFrom463 (V : Valuation τ sig (Elt F)) : after (opsFrom463 : List (HloOp τ sig (Elt F))) V = after opsFrom464 (after stepOps463 V) := after_append _ _ V
abbrev opsFrom462 : List (HloOp τ sig (Elt F)) := stepOps462 ++ opsFrom463
theorem opsFrom462_ok : (opsFrom462 : List (HloOp τ sig (Elt F))).Forall (OpOk 10) := List.forall_append.mpr ⟨stepOps462_ok, opsFrom463_ok⟩
theorem after_opsFrom462 (V : Valuation τ sig (Elt F)) : after (opsFrom462 : List (HloOp τ sig (Elt F))) V = after opsFrom463 (after stepOps462 V) := after_append _ _ V
abbrev opsFrom461 : List (HloOp τ sig (Elt F)) := stepOps461 ++ opsFrom462
theorem opsFrom461_ok : (opsFrom461 : List (HloOp τ sig (Elt F))).Forall (OpOk 10) := List.forall_append.mpr ⟨stepOps461_ok, opsFrom462_ok⟩
theorem after_opsFrom461 (V : Valuation τ sig (Elt F)) : after (opsFrom461 : List (HloOp τ sig (Elt F))) V = after opsFrom462 (after stepOps461 V) := after_append _ _ V
abbrev opsFrom460 : List (HloOp τ sig (Elt F)) := stepOps460 ++ opsFrom461
theorem opsFrom460_ok : (opsFrom460 : List (HloOp τ sig (Elt F))).Forall (OpOk 10) := List.forall_append.mpr ⟨stepOps460_ok, opsFrom461_ok⟩
theorem after_opsFrom460 (V : Valuation τ sig (Elt F)) : after (opsFrom460 : List (HloOp τ sig (Elt F))) V = after opsFrom461 (after stepOps460 V) := after_append _ _ V
abbrev opsFrom459 : List (HloOp τ sig (Elt F)) := stepOps459 ++ opsFrom460
theorem opsFrom459_ok : (opsFrom459 : List (HloOp τ sig (Elt F))).Forall (OpOk 10) := List.forall_append.mpr ⟨stepOps459_ok, opsFrom460_ok⟩
theorem after_opsFrom459 (V : Valuation τ sig (Elt F)) : after (opsFrom459 : List (HloOp τ sig (Elt F))) V = after opsFrom460 (after stepOps459 V) := after_append _ _ V
abbrev opsFrom458 : List (HloOp τ sig (Elt F)) := stepOps458 ++ opsFrom459
theorem opsFrom458_ok : (opsFrom458 : List (HloOp τ sig (Elt F))).Forall (OpOk 10) := List.forall_append.mpr ⟨stepOps458_ok, opsFrom459_ok⟩
theorem after_opsFrom458 (V : Valuation τ sig (Elt F)) : after (opsFrom458 : List (HloOp τ sig (Elt F))) V = after opsFrom459 (after stepOps458 V) := after_append _ _ V
abbrev opsFrom457 : List (HloOp τ sig (Elt F)) := stepOps457 ++ opsFrom458
theorem opsFrom457_ok : (opsFrom457 : List (HloOp τ sig (Elt F))).Forall (OpOk 10) := List.forall_append.mpr ⟨stepOps457_ok, opsFrom458_ok⟩
theorem after_opsFrom457 (V : Valuation τ sig (Elt F)) : after (opsFrom457 : List (HloOp τ sig (Elt F))) V = after opsFrom458 (after stepOps457 V) := after_append _ _ V
abbrev opsFrom456 : List (HloOp τ sig (Elt F)) := stepOps456 ++ opsFrom457
theorem opsFrom456_ok : (opsFrom456 : List (HloOp τ sig (Elt F))).Forall (OpOk 10) := List.forall_append.mpr ⟨stepOps456_ok, opsFrom457_ok⟩
theorem after_opsFrom456 (V : Valuation τ sig (Elt F)) : after (opsFrom456 : List (HloOp τ sig (Elt F))) V = after opsFrom457 (after stepOps456 V) := after_append _ _ V
abbrev opsFrom455 : List (HloOp τ sig (Elt F)) := stepOps455 ++ opsFrom456
theorem opsFrom455_ok : (opsFrom455 : List (HloOp τ sig (Elt F))).Forall (OpOk 10) := List.forall_append.mpr ⟨stepOps455_ok, opsFrom456_ok⟩
theorem after_opsFrom455 (V : Valuation τ sig (Elt F)) : after (opsFrom455 : List (HloOp τ sig (Elt F))) V = after opsFrom456 (after stepOps455 V) := after_append _ _ V
abbrev opsFrom454 : List (HloOp τ sig (Elt F)) := stepOps454 ++ opsFrom455
theorem opsFrom454_ok : (opsFrom454 : List (HloOp τ sig (Elt F))).Forall (OpOk 10) := List.forall_append.mpr ⟨stepOps454_ok, opsFrom455_ok⟩
theorem after_opsFrom454 (V : Valuation τ sig (Elt F)) : after (opsFrom454 : List (HloOp τ sig (Elt F))) V = after opsFrom455 (after stepOps454 V) := after_append _ _ V
abbrev opsFrom453 : List (HloOp τ sig (Elt F)) := stepOps453 ++ opsFrom454
theorem opsFrom453_ok : (opsFrom453 : List (HloOp τ sig (Elt F))).Forall (OpOk 10) := List.forall_append.mpr ⟨stepOps453_ok, opsFrom454_ok⟩
theorem after_opsFrom453 (V : Valuation τ sig (Elt F)) : after (opsFrom453 : List (HloOp τ sig (Elt F))) V = after opsFrom454 (after stepOps453 V) := after_append _ _ V
abbrev opsFrom452 : List (HloOp τ sig (Elt F)) := stepOps452 ++ opsFrom453
theorem opsFrom452_ok : (opsFrom452 : List (HloOp τ sig (Elt F))).Forall (OpOk 10) := List.forall_append.mpr ⟨stepOps452_ok, opsFrom453_ok⟩
theorem after_opsFrom452 (V : Valuation τ sig (Elt F)) : after (opsFrom452 : List (HloOp τ sig (Elt F))) V = after opsFrom453 (after stepOps452 V) := after_append _ _ V
abbrev opsFrom451 : List (HloOp τ sig (Elt F)) := stepOps451 ++ opsFrom452
theorem opsFrom451_ok : (opsFrom451 : List (HloOp τ sig (Elt F))).Forall (OpOk 10) := List.forall_append.mpr ⟨stepOps451_ok, opsFrom452_ok⟩
theorem after_opsFrom451 (V : Valuation τ sig (Elt F)) : after (opsFrom451 : List (HloOp τ sig (Elt F))) V = after opsFrom452 (after stepOps451 V) := after_append _ _ V
abbrev opsFrom450 : List (HloOp τ sig (Elt F)) := stepOps450 ++ opsFrom451
theorem opsFrom450_ok : (opsFrom450 : List (HloOp τ sig (Elt F))).Forall (OpOk 10) := List.forall_append.mpr ⟨stepOps450_ok, opsFrom451_ok⟩
theorem after_opsFrom450 (V : Valuation τ sig (Elt F)) : after (opsFrom450 : List (HloOp τ sig (Elt F))) V = after opsFrom451 (after stepOps450 V) := after_append _ _ V
abbrev opsFrom449 : List (HloOp τ sig (Elt F)) := stepOps449 ++ opsFrom450
theorem opsFrom449_ok : (opsFrom449 : List (HloOp τ sig (Elt F))).Forall (OpOk 10) := List.forall_append.mpr ⟨stepOps449_ok, opsFrom450_ok⟩
theorem after_opsFrom449 (V : Valuation τ sig (Elt F)) : after (opsFrom449 : List (HloOp τ sig (Elt F))) V = after opsFrom450 (after stepOps449 V) := after_append _ _ V
abbrev opsFrom448 : List (HloOp τ sig (Elt F)) := stepOps448 ++ opsFrom449
theorem opsFrom448_ok : (opsFrom448 : List (HloOp τ sig (Elt F))).Forall (OpOk 10) := List.forall_append.mpr ⟨stepOps448_ok, opsFrom449_ok⟩
theorem after_opsFrom448 (V : Valuation τ sig (Elt F)) : after (opsFrom448 : List (HloOp τ sig (Elt F))) V = after opsFrom449 (after stepOps448 V) := after_append _ _ V
abbrev opsFrom447 : List (HloOp τ sig (Elt F)) := stepOps447 ++ opsFrom448
theorem opsFrom447_ok : (opsFrom447 : List (HloOp τ sig (Elt F))).Forall (OpOk 10) := List.forall_append.mpr ⟨stepOps447_ok, opsFrom448_ok⟩
theorem after_opsFrom447 (V : Valuation τ sig (Elt F)) : after (opsFrom447 : List (HloOp τ sig (Elt F))) V = after opsFrom448 (after stepOps447 V) := after_append _ _ V
abbrev opsFrom446 : List (HloOp τ sig (Elt F)) := stepOps446 ++ opsFrom447
theorem opsFrom446_ok : (opsFrom446 : List (HloOp τ sig (Elt F))).Forall (OpOk 10) := List.forall_append.mpr ⟨stepOps446_ok, opsFrom447_ok⟩
theorem after_opsFrom446 (V : Valuation τ sig (Elt F)) : after (opsFrom446 : List (HloOp τ sig (Elt F))) V = after opsFrom447 (after stepOps446 V) := after_append _ _ V
abbrev opsFrom445 : List (HloOp τ sig (Elt F)) := stepOps445 ++ opsFrom446
theorem opsFrom445_ok : (opsFrom445 : List (HloOp τ sig (Elt F))).Forall (OpOk 10) := List.forall_append.mpr ⟨stepOps445_ok, opsFrom446_ok⟩
theorem after_opsFrom445 (V : Valuation τ sig (Elt F)) : after (opsFrom445 : List (HloOp τ sig (Elt F))) V = after opsFrom446 (after stepOps445 V) := after_append _ _ V
abbrev opsFrom444 : List (HloOp τ sig (Elt F)) := stepOps444 ++ opsFrom445
theorem opsFrom444_ok : (opsFrom444 : List (HloOp τ sig (Elt F))).Forall (OpOk 10) := List.forall_append.mpr ⟨stepOps444_ok, opsFrom445_ok⟩
theorem after_opsFrom444 (V : Valuation τ sig (Elt F)) : after (opsFrom444 : List (HloOp τ sig (Elt F))) V = after opsFrom445 (after stepOps444 V) := after_append _ _ V
abbrev opsFrom443 : List (HloOp τ sig (Elt F)) := stepOps443 ++ opsFrom444
theorem opsFrom443_ok : (opsFrom443 : List (HloOp τ sig (Elt F))).Forall (OpOk 10) := List.forall_append.mpr ⟨stepOps443_ok, opsFrom444_ok⟩
theorem after_opsFrom443 (V : Valuation τ sig (Elt F)) : after (opsFrom443 : List (HloOp τ sig (Elt F))) V = after opsFrom444 (after stepOps443 V) := after_append _ _ V
abbrev opsFrom442 : List (HloOp τ sig (Elt F)) := stepOps442 ++ opsFrom443
theorem opsFrom442_ok : (opsFrom442 : List (HloOp τ sig (Elt F))).Forall (OpOk 10) := List.forall_append.mpr ⟨stepOps442_ok, opsFrom443_ok⟩
theorem after_opsFrom442 (V : Valuation τ sig (Elt F)) : after (opsFrom442 : List (HloOp τ sig (Elt F))) V = after opsFrom443 (after stepOps442 V) := after_append _ _ V
abbrev opsFrom441 : List (HloOp τ sig (Elt F)) := stepOps441 ++ opsFrom442
theorem opsFrom441_ok : (opsFrom441 : List (HloOp τ sig (Elt F))).Forall (OpOk 10) := List.forall_append.mpr ⟨stepOps441_ok, opsFrom442_ok⟩
theorem after_opsFrom441 (V : Valuation τ sig (Elt F)) : after (opsFrom441 : List (HloOp τ sig (Elt F))) V = after opsFrom442 (after stepOps441 V) := after_append _ _ V
abbrev opsFrom440 : List (HloOp τ sig (Elt F)) := stepOps440 ++ opsFrom441
theorem opsFrom440_ok : (opsFrom440 : List (HloOp τ sig (Elt F))).Forall (OpOk 10) := List.forall_append.mpr ⟨stepOps440_ok, opsFrom441_ok⟩
theorem after_opsFrom440 (V : Valuation τ sig (Elt F)) : after (opsFrom440 : List (HloOp τ sig (Elt F))) V = after opsFrom441 (after stepOps440 V) := after_append _ _ V
abbrev opsFrom439 : List (HloOp τ sig (Elt F)) := stepOps439 ++ opsFrom440
theorem opsFrom439_ok : (opsFrom439 : List (HloOp τ sig (Elt F))).Forall (OpOk 10) := List.forall_append.mpr ⟨stepOps439_ok, opsFrom440_ok⟩
theorem after_opsFrom439 (V : Valuation τ sig (Elt F)) : after (opsFrom439 : List (HloOp τ sig (Elt F))) V = after opsFrom440 (after stepOps439 V) := after_append _ _ V
abbrev opsFrom438 : List (HloOp τ sig (Elt F)) := stepOps438 ++ opsFrom439
theorem opsFrom438_ok : (opsFrom438 : List (HloOp τ sig (Elt F))).Forall (OpOk 10) := List.forall_append.mpr ⟨stepOps438_ok, opsFrom439_ok⟩
theorem after_opsFrom438 (V : Valuation τ sig (Elt F)) : after (opsFrom438 : List (HloOp τ sig (Elt F))) V = after opsFrom439 (after stepOps438 V) := after_append _ _ V
abbrev opsFrom437 : List (HloOp τ sig (Elt F)) := stepOps437 ++ opsFrom438
theorem opsFrom437_ok : (opsFrom437 : List (HloOp τ sig (Elt F))).Forall (OpOk 10) := List.forall_append.mpr ⟨stepOps437_ok, opsFrom438_ok⟩
theorem after_opsFrom437 (V : Valuation τ sig (Elt F)) : after (opsFrom437 : List (HloOp τ sig (Elt F))) V = after opsFrom438 (after stepOps437 V) := after_append _ _ V
abbrev opsFrom436 : List (HloOp τ sig (Elt F)) := stepOps436 ++ opsFrom437
theorem opsFrom436_ok : (opsFrom436 : List (HloOp τ sig (Elt F))).Forall (OpOk 10) := List.forall_append.mpr ⟨stepOps436_ok, opsFrom437_ok⟩
theorem after_opsFrom436 (V : Valuation τ sig (Elt F)) : after (opsFrom436 : List (HloOp τ sig (Elt F))) V = after opsFrom437 (after stepOps436 V) := after_append _ _ V
abbrev opsFrom435 : List (HloOp τ sig (Elt F)) := stepOps435 ++ opsFrom436
theorem opsFrom435_ok : (opsFrom435 : List (HloOp τ sig (Elt F))).Forall (OpOk 10) := List.forall_append.mpr ⟨stepOps435_ok, opsFrom436_ok⟩
theorem after_opsFrom435 (V : Valuation τ sig (Elt F)) : after (opsFrom435 : List (HloOp τ sig (Elt F))) V = after opsFrom436 (after stepOps435 V) := after_append _ _ V
abbrev opsFrom434 : List (HloOp τ sig (Elt F)) := stepOps434 ++ opsFrom435
theorem opsFrom434_ok : (opsFrom434 : List (HloOp τ sig (Elt F))).Forall (OpOk 10) := List.forall_append.mpr ⟨stepOps434_ok, opsFrom435_ok⟩
theorem after_opsFrom434 (V : Valuation τ sig (Elt F)) : after (opsFrom434 : List (HloOp τ sig (Elt F))) V = after opsFrom435 (after stepOps434 V) := after_append _ _ V
abbrev opsFrom433 : List (HloOp τ sig (Elt F)) := stepOps433 ++ opsFrom434
theorem opsFrom433_ok : (opsFrom433 : List (HloOp τ sig (Elt F))).Forall (OpOk 10) := List.forall_append.mpr ⟨stepOps433_ok, opsFrom434_ok⟩
theorem after_opsFrom433 (V : Valuation τ sig (Elt F)) : after (opsFrom433 : List (HloOp τ sig (Elt F))) V = after opsFrom434 (after stepOps433 V) := after_append _ _ V
abbrev opsFrom432 : List (HloOp τ sig (Elt F)) := stepOps432 ++ opsFrom433
theorem opsFrom432_ok : (opsFrom432 : List (HloOp τ sig (Elt F))).Forall (OpOk 10) := List.forall_append.mpr ⟨stepOps432_ok, opsFrom433_ok⟩
theorem after_opsFrom432 (V : Valuation τ sig (Elt F)) : after (opsFrom432 : List (HloOp τ sig (Elt F))) V = after opsFrom433 (after stepOps432 V) := after_append _ _ V
abbrev opsFrom431 : List (HloOp τ sig (Elt F)) := stepOps431 ++ opsFrom432
theorem opsFrom431_ok : (opsFrom431 : List (HloOp τ sig (Elt F))).Forall (OpOk 10) := List.forall_append.mpr ⟨stepOps431_ok, opsFrom432_ok⟩
theorem after_opsFrom431 (V : Valuation τ sig (Elt F)) : after (opsFrom431 : List (HloOp τ sig (Elt F))) V = after opsFrom432 (after stepOps431 V) := after_append _ _ V
abbrev opsFrom430 : List (HloOp τ sig (Elt F)) := stepOps430 ++ opsFrom431
theorem opsFrom430_ok : (opsFrom430 : List (HloOp τ sig (Elt F))).Forall (OpOk 10) := List.forall_append.mpr ⟨stepOps430_ok, opsFrom431_ok⟩
theorem after_opsFrom430 (V : Valuation τ sig (Elt F)) : after (opsFrom430 : List (HloOp τ sig (Elt F))) V = after opsFrom431 (after stepOps430 V) := after_append _ _ V
abbrev opsFrom429 : List (HloOp τ sig (Elt F)) := stepOps429 ++ opsFrom430
theorem opsFrom429_ok : (opsFrom429 : List (HloOp τ sig (Elt F))).Forall (OpOk 10) := List.forall_append.mpr ⟨stepOps429_ok, opsFrom430_ok⟩
theorem after_opsFrom429 (V : Valuation τ sig (Elt F)) : after (opsFrom429 : List (HloOp τ sig (Elt F))) V = after opsFrom430 (after stepOps429 V) := after_append _ _ V
abbrev opsFrom428 : List (HloOp τ sig (Elt F)) := stepOps428 ++ opsFrom429
theorem opsFrom428_ok : (opsFrom428 : List (HloOp τ sig (Elt F))).Forall (OpOk 10) := List.forall_append.mpr ⟨stepOps428_ok, opsFrom429_ok⟩
theorem after_opsFrom428 (V : Valuation τ sig (Elt F)) : after (opsFrom428 : List (HloOp τ sig (Elt F))) V = after opsFrom429 (after stepOps428 V) := after_append _ _ V
abbrev opsFrom427 : List (HloOp τ sig (Elt F)) := stepOps427 ++ opsFrom428
theorem opsFrom427_ok : (opsFrom427 : List (HloOp τ sig (Elt F))).Forall (OpOk 10) := List.forall_append.mpr ⟨stepOps427_ok, opsFrom428_ok⟩
theorem after_opsFrom427 (V : Valuation τ sig (Elt F)) : after (opsFrom427 : List (HloOp τ sig (Elt F))) V = after opsFrom428 (after stepOps427 V) := after_append _ _ V
abbrev opsFrom426 : List (HloOp τ sig (Elt F)) := stepOps426 ++ opsFrom427
theorem opsFrom426_ok : (opsFrom426 : List (HloOp τ sig (Elt F))).Forall (OpOk 10) := List.forall_append.mpr ⟨stepOps426_ok, opsFrom427_ok⟩
theorem after_opsFrom426 (V : Valuation τ sig (Elt F)) : after (opsFrom426 : List (HloOp τ sig (Elt F))) V = after opsFrom427 (after stepOps426 V) := after_append _ _ V
abbrev opsFrom425 : List (HloOp τ sig (Elt F)) := stepOps425 ++ opsFrom426
theorem opsFrom425_ok : (opsFrom425 : List (HloOp τ sig (Elt F))).Forall (OpOk 10) := List.forall_append.mpr ⟨stepOps425_ok, opsFrom426_ok⟩
theorem after_opsFrom425 (V : Valuation τ sig (Elt F)) : after (opsFrom425 : List (HloOp τ sig (Elt F))) V = after opsFrom426 (after stepOps425 V) := after_append _ _ V
abbrev opsFrom424 : List (HloOp τ sig (Elt F)) := stepOps424 ++ opsFrom425
theorem opsFrom424_ok : (opsFrom424 : List (HloOp τ sig (Elt F))).Forall (OpOk 10) := List.forall_append.mpr ⟨stepOps424_ok, opsFrom425_ok⟩
theorem after_opsFrom424 (V : Valuation τ sig (Elt F)) : after (opsFrom424 : List (HloOp τ sig (Elt F))) V = after opsFrom425 (after stepOps424 V) := after_append _ _ V
abbrev opsFrom423 : List (HloOp τ sig (Elt F)) := stepOps423 ++ opsFrom424
theorem opsFrom423_ok : (opsFrom423 : List (HloOp τ sig (Elt F))).Forall (OpOk 10) := List.forall_append.mpr ⟨stepOps423_ok, opsFrom424_ok⟩
theorem after_opsFrom423 (V : Valuation τ sig (Elt F)) : after (opsFrom423 : List (HloOp τ sig (Elt F))) V = after opsFrom424 (after stepOps423 V) := after_append _ _ V
abbrev opsFrom422 : List (HloOp τ sig (Elt F)) := stepOps422 ++ opsFrom423
theorem opsFrom422_ok : (opsFrom422 : List (HloOp τ sig (Elt F))).Forall (OpOk 10) := List.forall_append.mpr ⟨stepOps422_ok, opsFrom423_ok⟩
theorem after_opsFrom422 (V : Valuation τ sig (Elt F)) : after (opsFrom422 : List (HloOp τ sig (Elt F))) V = after opsFrom423 (after stepOps422 V) := after_append _ _ V
abbrev opsFrom421 : List (HloOp τ sig (Elt F)) := stepOps421 ++ opsFrom422
theorem opsFrom421_ok : (opsFrom421 : List (HloOp τ sig (Elt F))).Forall (OpOk 10) := List.forall_append.mpr ⟨stepOps421_ok, opsFrom422_ok⟩
theorem after_opsFrom421 (V : Valuation τ sig (Elt F)) : after (opsFrom421 : List (HloOp τ sig (Elt F))) V = after opsFrom422 (after stepOps421 V) := after_append _ _ V
abbrev opsFrom420 : List (HloOp τ sig (Elt F)) := stepOps420 ++ opsFrom421
theorem opsFrom420_ok : (opsFrom420 : List (HloOp τ sig (Elt F))).Forall (OpOk 10) := List.forall_append.mpr ⟨stepOps420_ok, opsFrom421_ok⟩
theorem after_opsFrom420 (V : Valuation τ sig (Elt F)) : after (opsFrom420 : List (HloOp τ sig (Elt F))) V = after opsFrom421 (after stepOps420 V) := after_append _ _ V
abbrev opsFrom419 : List (HloOp τ sig (Elt F)) := stepOps419 ++ opsFrom420
theorem opsFrom419_ok : (opsFrom419 : List (HloOp τ sig (Elt F))).Forall (OpOk 10) := List.forall_append.mpr ⟨stepOps419_ok, opsFrom420_ok⟩
theorem after_opsFrom419 (V : Valuation τ sig (Elt F)) : after (opsFrom419 : List (HloOp τ sig (Elt F))) V = after opsFrom420 (after stepOps419 V) := after_append _ _ V
abbrev opsFrom418 : List (HloOp τ sig (Elt F)) := stepOps418 ++ opsFrom419
theorem opsFrom418_ok : (opsFrom418 : List (HloOp τ sig (Elt F))).Forall (OpOk 10) := List.forall_append.mpr ⟨stepOps418_ok, opsFrom419_ok⟩
theorem after_opsFrom418 (V : Valuation τ sig (Elt F)) : after (opsFrom418 : List (HloOp τ sig (Elt F))) V = after opsFrom419 (after stepOps418 V) := after_append _ _ V
abbrev opsFrom417 : List (HloOp τ sig (Elt F)) := stepOps417 ++ opsFrom418
theorem opsFrom417_ok : (opsFrom417 : List (HloOp τ sig (Elt F))).Forall (OpOk 10) := List.forall_append.mpr ⟨stepOps417_ok, opsFrom418_ok⟩
theorem after_opsFrom417 (V : Valuation τ sig (Elt F)) : after (opsFrom417 : List (HloOp τ sig (Elt F))) V = after opsFrom418 (after stepOps417 V) := after_append _ _ V
abbrev opsFrom416 : List (HloOp τ sig (Elt F)) := stepOps416 ++ opsFrom417
theorem opsFrom416_ok : (opsFrom416 : List (HloOp τ sig (Elt F))).Forall (OpOk 10) := List.forall_append.mpr ⟨stepOps416_ok, opsFrom417_ok⟩
theorem after_opsFrom416 (V : Valuation τ sig (Elt F)) : after (opsFrom416 : List (HloOp τ sig (Elt F))) V = after opsFrom417 (after stepOps416 V) := after_append _ _ V
abbrev opsFrom415 : List (HloOp τ sig (Elt F)) := stepOps415 ++ opsFrom416
theorem opsFrom415_ok : (opsFrom415 : List (HloOp τ sig (Elt F))).Forall (OpOk 10) := List.forall_append.mpr ⟨stepOps415_ok, opsFrom416_ok⟩
theorem after_opsFrom415 (V : Valuation τ sig (Elt F)) : after (opsFrom415 : List (HloOp τ sig (Elt F))) V = after opsFrom416 (after stepOps415 V) := after_append _ _ V
abbrev opsFrom414 : List (HloOp τ sig (Elt F)) := stepOps414 ++ opsFrom415
theorem opsFrom414_ok : (opsFrom414 : List (HloOp τ sig (Elt F))).Forall (OpOk 10) := List.forall_append.mpr ⟨stepOps414_ok, opsFrom415_ok⟩
theorem after_opsFrom414 (V : Valuation τ sig (Elt F)) : after (opsFrom414 : List (HloOp τ sig (Elt F))) V = after opsFrom415 (after stepOps414 V) := after_append _ _ V
abbrev opsFrom413 : List (HloOp τ sig (Elt F)) := stepOps413 ++ opsFrom414
theorem opsFrom413_ok : (opsFrom413 : List (HloOp τ sig (Elt F))).Forall (OpOk 10) := List.forall_append.mpr ⟨stepOps413_ok, opsFrom414_ok⟩
theorem after_opsFrom413 (V : Valuation τ sig (Elt F)) : after (opsFrom413 : List (HloOp τ sig (Elt F))) V = after opsFrom414 (after stepOps413 V) := after_append _ _ V
abbrev opsFrom412 : List (HloOp τ sig (Elt F)) := stepOps412 ++ opsFrom413
theorem opsFrom412_ok : (opsFrom412 : List (HloOp τ sig (Elt F))).Forall (OpOk 10) := List.forall_append.mpr ⟨stepOps412_ok, opsFrom413_ok⟩
theorem after_opsFrom412 (V : Valuation τ sig (Elt F)) : after (opsFrom412 : List (HloOp τ sig (Elt F))) V = after opsFrom413 (after stepOps412 V) := after_append _ _ V
abbrev opsFrom411 : List (HloOp τ sig (Elt F)) := stepOps411 ++ opsFrom412
theorem opsFrom411_ok : (opsFrom411 : List (HloOp τ sig (Elt F))).Forall (OpOk 10) := List.forall_append.mpr ⟨stepOps411_ok, opsFrom412_ok⟩
theorem after_opsFrom411 (V : Valuation τ sig (Elt F)) : after (opsFrom411 : List (HloOp τ sig (Elt F))) V = after opsFrom412 (after stepOps411 V) := after_append _ _ V
abbrev opsFrom410 : List (HloOp τ sig (Elt F)) := stepOps410 ++ opsFrom411
theorem opsFrom410_ok : (opsFrom410 : List (HloOp τ sig (Elt F))).Forall (OpOk 10) := List.forall_append.mpr ⟨stepOps410_ok, opsFrom411_ok⟩
theorem after_opsFrom410 (V : Valuation τ sig (Elt F)) : after (opsFrom410 : List (HloOp τ sig (Elt F))) V = after opsFrom411 (after stepOps410 V) := after_append _ _ V
abbrev opsFrom409 : List (HloOp τ sig (Elt F)) := stepOps409 ++ opsFrom410
theorem opsFrom409_ok : (opsFrom409 : List (HloOp τ sig (Elt F))).Forall (OpOk 10) := List.forall_append.mpr ⟨stepOps409_ok, opsFrom410_ok⟩
theorem after_opsFrom409 (V : Valuation τ sig (Elt F)) : after (opsFrom409 : List (HloOp τ sig (Elt F))) V = after opsFrom410 (after stepOps409 V) := after_append _ _ V
abbrev opsFrom408 : List (HloOp τ sig (Elt F)) := stepOps408 ++ opsFrom409
theorem opsFrom408_ok : (opsFrom408 : List (HloOp τ sig (Elt F))).Forall (OpOk 10) := List.forall_append.mpr ⟨stepOps408_ok, opsFrom409_ok⟩
theorem after_opsFrom408 (V : Valuation τ sig (Elt F)) : after (opsFrom408 : List (HloOp τ sig (Elt F))) V = after opsFrom409 (after stepOps408 V) := after_append _ _ V
abbrev opsFrom407 : List (HloOp τ sig (Elt F)) := stepOps407 ++ opsFrom408
theorem opsFrom407_ok : (opsFrom407 : List (HloOp τ sig (Elt F))).Forall (OpOk 10) := List.forall_append.mpr ⟨stepOps407_ok, opsFrom408_ok⟩
theorem after_opsFrom407 (V : Valuation τ sig (Elt F)) : after (opsFrom407 : List (HloOp τ sig (Elt F))) V = after opsFrom408 (after stepOps407 V) := after_append _ _ V
abbrev opsFrom406 : List (HloOp τ sig (Elt F)) := stepOps406 ++ opsFrom407
theorem opsFrom406_ok : (opsFrom406 : List (HloOp τ sig (Elt F))).Forall (OpOk 10) := List.forall_append.mpr ⟨stepOps406_ok, opsFrom407_ok⟩
theorem after_opsFrom406 (V : Valuation τ sig (Elt F)) : after (opsFrom406 : List (HloOp τ sig (Elt F))) V = after opsFrom407 (after stepOps406 V) := after_append _ _ V
abbrev opsFrom405 : List (HloOp τ sig (Elt F)) := stepOps405 ++ opsFrom406
theorem opsFrom405_ok : (opsFrom405 : List (HloOp τ sig (Elt F))).Forall (OpOk 10) := List.forall_append.mpr ⟨stepOps405_ok, opsFrom406_ok⟩
theorem after_opsFrom405 (V : Valuation τ sig (Elt F)) : after (opsFrom405 : List (HloOp τ sig (Elt F))) V = after opsFrom406 (after stepOps405 V) := after_append _ _ V
abbrev opsFrom404 : List (HloOp τ sig (Elt F)) := stepOps404 ++ opsFrom405
theorem opsFrom404_ok : (opsFrom404 : List (HloOp τ sig (Elt F))).Forall (OpOk 10) := List.forall_append.mpr ⟨stepOps404_ok, opsFrom405_ok⟩
theorem after_opsFrom404 (V : Valuation τ sig (Elt F)) : after (opsFrom404 : List (HloOp τ sig (Elt F))) V = after opsFrom405 (after stepOps404 V) := after_append _ _ V
abbrev opsFrom403 : List (HloOp τ sig (Elt F)) := stepOps403 ++ opsFrom404
theorem opsFrom403_ok : (opsFrom403 : List (HloOp τ sig (Elt F))).Forall (OpOk 10) := List.forall_append.mpr ⟨stepOps403_ok, opsFrom404_ok⟩
theorem after_opsFrom403 (V : Valuation τ sig (Elt F)) : after (opsFrom403 : List (HloOp τ sig (Elt F))) V = after opsFrom404 (after stepOps403 V) := after_append _ _ V
abbrev opsFrom402 : List (HloOp τ sig (Elt F)) := stepOps402 ++ opsFrom403
theorem opsFrom402_ok : (opsFrom402 : List (HloOp τ sig (Elt F))).Forall (OpOk 10) := List.forall_append.mpr ⟨stepOps402_ok, opsFrom403_ok⟩
theorem after_opsFrom402 (V : Valuation τ sig (Elt F)) : after (opsFrom402 : List (HloOp τ sig (Elt F))) V = after opsFrom403 (after stepOps402 V) := after_append _ _ V
abbrev opsFrom401 : List (HloOp τ sig (Elt F)) := stepOps401 ++ opsFrom402
theorem opsFrom401_ok : (opsFrom401 : List (HloOp τ sig (Elt F))).Forall (OpOk 10) := List.forall_append.mpr ⟨stepOps401_ok, opsFrom402_ok⟩
theorem after_opsFrom401 (V : Valuation τ sig (Elt F)) : after (opsFrom401 : List (HloOp τ sig (Elt F))) V = after opsFrom402 (after stepOps401 V) := after_append _ _ V
abbrev opsFrom400 : List (HloOp τ sig (Elt F)) := stepOps400 ++ opsFrom401
theorem opsFrom400_ok : (opsFrom400 : List (HloOp τ sig (Elt F))).Forall (OpOk 10) := List.forall_append.mpr ⟨stepOps400_ok, opsFrom401_ok⟩
theorem after_opsFrom400 (V : Valuation τ sig (Elt F)) : after (opsFrom400 : List (HloOp τ sig (Elt F))) V = after opsFrom401 (after stepOps400 V) := after_append _ _ V
abbrev opsFrom399 : List (HloOp τ sig (Elt F)) := stepOps399 ++ opsFrom400
theorem opsFrom399_ok : (opsFrom399 : List (HloOp τ sig (Elt F))).Forall (OpOk 10) := List.forall_append.mpr ⟨stepOps399_ok, opsFrom400_ok⟩
theorem after_opsFrom399 (V : Valuation τ sig (Elt F)) : after (opsFrom399 : List (HloOp τ sig (Elt F))) V = after opsFrom400 (after stepOps399 V) := after_append _ _ V
abbrev opsFrom398 : List (HloOp τ sig (Elt F)) := stepOps398 ++ opsFrom399
theorem opsFrom398_ok : (opsFrom398 : List (HloOp τ sig (Elt F))).Forall (OpOk 10) := List.forall_append.mpr ⟨stepOps398_ok, opsFrom399_ok⟩
theorem after_opsFrom398 (V : Valuation τ sig (Elt F)) : after (opsFrom398 : List (HloOp τ sig (Elt F))) V = after opsFrom399 (after stepOps398 V) := after_append _ _ V
abbrev opsFrom397 : List (HloOp τ sig (Elt F)) := stepOps397 ++ opsFrom398
theorem opsFrom397_ok : (opsFrom397 : List (HloOp τ sig (Elt F))).Forall (OpOk 10) := List.forall_append.mpr ⟨stepOps397_ok, opsFrom398_ok⟩
theorem after_opsFrom397 (V : Valuation τ sig (Elt F)) : after (opsFrom397 : List (HloOp τ sig (Elt F))) V = after opsFrom398 (after stepOps397 V) := after_append _ _ V
abbrev opsFrom396 : List (HloOp τ sig (Elt F)) := stepOps396 ++ opsFrom397
theorem opsFrom396_ok : (opsFrom396 : List (HloOp τ sig (Elt F))).Forall (OpOk 10) := List.forall_append.mpr ⟨stepOps396_ok, opsFrom397_ok⟩
theorem after_opsFrom396 (V : Valuation τ sig (Elt F)) : after (opsFrom396 : List (HloOp τ sig (Elt F))) V = after opsFrom397 (after stepOps396 V) := after_append _ _ V
abbrev opsFrom395 : List (HloOp τ sig (Elt F)) := stepOps395 ++ opsFrom396
theorem opsFrom395_ok : (opsFrom395 : List (HloOp τ sig (Elt F))).Forall (OpOk 10) := List.forall_append.mpr ⟨stepOps395_ok, opsFrom396_ok⟩
theorem after_opsFrom395 (V : Valuation τ sig (Elt F)) : after (opsFrom395 : List (HloOp τ sig (Elt F))) V = after opsFrom396 (after stepOps395 V) := after_append _ _ V
abbrev opsFrom394 : List (HloOp τ sig (Elt F)) := stepOps394 ++ opsFrom395
theorem opsFrom394_ok : (opsFrom394 : List (HloOp τ sig (Elt F))).Forall (OpOk 10) := List.forall_append.mpr ⟨stepOps394_ok, opsFrom395_ok⟩
theorem after_opsFrom394 (V : Valuation τ sig (Elt F)) : after (opsFrom394 : List (HloOp τ sig (Elt F))) V = after opsFrom395 (after stepOps394 V) := after_append _ _ V
abbrev opsFrom393 : List (HloOp τ sig (Elt F)) := stepOps393 ++ opsFrom394
theorem opsFrom393_ok : (opsFrom393 : List (HloOp τ sig (Elt F))).Forall (OpOk 10) := List.forall_append.mpr ⟨stepOps393_ok, opsFrom394_ok⟩
theorem after_opsFrom393 (V : Valuation τ sig (Elt F)) : after (opsFrom393 : List (HloOp τ sig (Elt F))) V = after opsFrom394 (after stepOps393 V) := after_append _ _ V
abbrev opsFrom392 : List (HloOp τ sig (Elt F)) := stepOps392 ++ opsFrom393
theorem opsFrom392_ok : (opsFrom392 : List (HloOp τ sig (Elt F))).Forall (OpOk 10) := List.forall_append.mpr ⟨stepOps392_ok, opsFrom393_ok⟩
theorem after_opsFrom392 (V : Valuation τ sig (Elt F)) : after (opsFrom392 : List (HloOp τ sig (Elt F))) V = after opsFrom393 (after stepOps392 V) := after_append _ _ V
abbrev opsFrom391 : List (HloOp τ sig (Elt F)) := stepOps391 ++ opsFrom392
theorem opsFrom391_ok : (opsFrom391 : List (HloOp τ sig (Elt F))).Forall (OpOk 10) := List.forall_append.mpr ⟨stepOps391_ok, opsFrom392_ok⟩
theorem after_opsFrom391 (V : Valuation τ sig (Elt F)) : after (opsFrom391 : List (HloOp τ sig (Elt F))) V = after opsFrom392 (after stepOps391 V) := after_append _ _ V
abbrev opsFrom390 : List (HloOp τ sig (Elt F)) := stepOps390 ++ opsFrom391
theorem opsFrom390_ok : (opsFrom390 : List (HloOp τ sig (Elt F))).Forall (OpOk 10) := List.forall_append.mpr ⟨stepOps390_ok, opsFrom391_ok⟩
theorem after_opsFrom390 (V : Valuation τ sig (Elt F)) : after (opsFrom390 : List (HloOp τ sig (Elt F))) V = after opsFrom391 (after stepOps390 V) := after_append _ _ V
abbrev opsFrom389 : List (HloOp τ sig (Elt F)) := stepOps389 ++ opsFrom390
theorem opsFrom389_ok : (opsFrom389 : List (HloOp τ sig (Elt F))).Forall (OpOk 10) := List.forall_append.mpr ⟨stepOps389_ok, opsFrom390_ok⟩
theorem after_opsFrom389 (V : Valuation τ sig (Elt F)) : after (opsFrom389 : List (HloOp τ sig (Elt F))) V = after opsFrom390 (after stepOps389 V) := after_append _ _ V
abbrev opsFrom388 : List (HloOp τ sig (Elt F)) := stepOps388 ++ opsFrom389
theorem opsFrom388_ok : (opsFrom388 : List (HloOp τ sig (Elt F))).Forall (OpOk 10) := List.forall_append.mpr ⟨stepOps388_ok, opsFrom389_ok⟩
theorem after_opsFrom388 (V : Valuation τ sig (Elt F)) : after (opsFrom388 : List (HloOp τ sig (Elt F))) V = after opsFrom389 (after stepOps388 V) := after_append _ _ V
abbrev opsFrom387 : List (HloOp τ sig (Elt F)) := stepOps387 ++ opsFrom388
theorem opsFrom387_ok : (opsFrom387 : List (HloOp τ sig (Elt F))).Forall (OpOk 10) := List.forall_append.mpr ⟨stepOps387_ok, opsFrom388_ok⟩
theorem after_opsFrom387 (V : Valuation τ sig (Elt F)) : after (opsFrom387 : List (HloOp τ sig (Elt F))) V = after opsFrom388 (after stepOps387 V) := after_append _ _ V
abbrev opsFrom386 : List (HloOp τ sig (Elt F)) := stepOps386 ++ opsFrom387
theorem opsFrom386_ok : (opsFrom386 : List (HloOp τ sig (Elt F))).Forall (OpOk 10) := List.forall_append.mpr ⟨stepOps386_ok, opsFrom387_ok⟩
theorem after_opsFrom386 (V : Valuation τ sig (Elt F)) : after (opsFrom386 : List (HloOp τ sig (Elt F))) V = after opsFrom387 (after stepOps386 V) := after_append _ _ V
abbrev opsFrom385 : List (HloOp τ sig (Elt F)) := stepOps385 ++ opsFrom386
theorem opsFrom385_ok : (opsFrom385 : List (HloOp τ sig (Elt F))).Forall (OpOk 10) := List.forall_append.mpr ⟨stepOps385_ok, opsFrom386_ok⟩
theorem after_opsFrom385 (V : Valuation τ sig (Elt F)) : after (opsFrom385 : List (HloOp τ sig (Elt F))) V = after opsFrom386 (after stepOps385 V) := after_append _ _ V
abbrev opsFrom384 : List (HloOp τ sig (Elt F)) := stepOps384 ++ opsFrom385
theorem opsFrom384_ok : (opsFrom384 : List (HloOp τ sig (Elt F))).Forall (OpOk 10) := List.forall_append.mpr ⟨stepOps384_ok, opsFrom385_ok⟩
theorem after_opsFrom384 (V : Valuation τ sig (Elt F)) : after (opsFrom384 : List (HloOp τ sig (Elt F))) V = after opsFrom385 (after stepOps384 V) := after_append _ _ V
abbrev opsFrom383 : List (HloOp τ sig (Elt F)) := stepOps383 ++ opsFrom384
theorem opsFrom383_ok : (opsFrom383 : List (HloOp τ sig (Elt F))).Forall (OpOk 10) := List.forall_append.mpr ⟨stepOps383_ok, opsFrom384_ok⟩
theorem after_opsFrom383 (V : Valuation τ sig (Elt F)) : after (opsFrom383 : List (HloOp τ sig (Elt F))) V = after opsFrom384 (after stepOps383 V) := after_append _ _ V
abbrev opsFrom382 : List (HloOp τ sig (Elt F)) := stepOps382 ++ opsFrom383
theorem opsFrom382_ok : (opsFrom382 : List (HloOp τ sig (Elt F))).Forall (OpOk 10) := List.forall_append.mpr ⟨stepOps382_ok, opsFrom383_ok⟩
theorem after_opsFrom382 (V : Valuation τ sig (Elt F)) : after (opsFrom382 : List (HloOp τ sig (Elt F))) V = after opsFrom383 (after stepOps382 V) := after_append _ _ V
abbrev opsFrom381 : List (HloOp τ sig (Elt F)) := stepOps381 ++ opsFrom382
theorem opsFrom381_ok : (opsFrom381 : List (HloOp τ sig (Elt F))).Forall (OpOk 10) := List.forall_append.mpr ⟨stepOps381_ok, opsFrom382_ok⟩
theorem after_opsFrom381 (V : Valuation τ sig (Elt F)) : after (opsFrom381 : List (HloOp τ sig (Elt F))) V = after opsFrom382 (after stepOps381 V) := after_append _ _ V
abbrev opsFrom380 : List (HloOp τ sig (Elt F)) := stepOps380 ++ opsFrom381
theorem opsFrom380_ok : (opsFrom380 : List (HloOp τ sig (Elt F))).Forall (OpOk 10) := List.forall_append.mpr ⟨stepOps380_ok, opsFrom381_ok⟩
theorem after_opsFrom380 (V : Valuation τ sig (Elt F)) : after (opsFrom380 : List (HloOp τ sig (Elt F))) V = after opsFrom381 (after stepOps380 V) := after_append _ _ V
abbrev opsFrom379 : List (HloOp τ sig (Elt F)) := stepOps379 ++ opsFrom380
theorem opsFrom379_ok : (opsFrom379 : List (HloOp τ sig (Elt F))).Forall (OpOk 10) := List.forall_append.mpr ⟨stepOps379_ok, opsFrom380_ok⟩
theorem after_opsFrom379 (V : Valuation τ sig (Elt F)) : after (opsFrom379 : List (HloOp τ sig (Elt F))) V = after opsFrom380 (after stepOps379 V) := after_append _ _ V
abbrev opsFrom378 : List (HloOp τ sig (Elt F)) := stepOps378 ++ opsFrom379
theorem opsFrom378_ok : (opsFrom378 : List (HloOp τ sig (Elt F))).Forall (OpOk 10) := List.forall_append.mpr ⟨stepOps378_ok, opsFrom379_ok⟩
theorem after_opsFrom378 (V : Valuation τ sig (Elt F)) : after (opsFrom378 : List (HloOp τ sig (Elt F))) V = after opsFrom379 (after stepOps378 V) := after_append _ _ V
abbrev opsFrom377 : List (HloOp τ sig (Elt F)) := stepOps377 ++ opsFrom378
theorem opsFrom377_ok : (opsFrom377 : List (HloOp τ sig (Elt F))).Forall (OpOk 10) := List.forall_append.mpr ⟨stepOps377_ok, opsFrom378_ok⟩
theorem after_opsFrom377 (V : Valuation τ sig (Elt F)) : after (opsFrom377 : List (HloOp τ sig (Elt F))) V = after opsFrom378 (after stepOps377 V) := after_append _ _ V
abbrev opsFrom376 : List (HloOp τ sig (Elt F)) := stepOps376 ++ opsFrom377
theorem opsFrom376_ok : (opsFrom376 : List (HloOp τ sig (Elt F))).Forall (OpOk 10) := List.forall_append.mpr ⟨stepOps376_ok, opsFrom377_ok⟩
theorem after_opsFrom376 (V : Valuation τ sig (Elt F)) : after (opsFrom376 : List (HloOp τ sig (Elt F))) V = after opsFrom377 (after stepOps376 V) := after_append _ _ V
abbrev opsFrom375 : List (HloOp τ sig (Elt F)) := stepOps375 ++ opsFrom376
theorem opsFrom375_ok : (opsFrom375 : List (HloOp τ sig (Elt F))).Forall (OpOk 10) := List.forall_append.mpr ⟨stepOps375_ok, opsFrom376_ok⟩
theorem after_opsFrom375 (V : Valuation τ sig (Elt F)) : after (opsFrom375 : List (HloOp τ sig (Elt F))) V = after opsFrom376 (after stepOps375 V) := after_append _ _ V
abbrev opsFrom374 : List (HloOp τ sig (Elt F)) := stepOps374 ++ opsFrom375
theorem opsFrom374_ok : (opsFrom374 : List (HloOp τ sig (Elt F))).Forall (OpOk 10) := List.forall_append.mpr ⟨stepOps374_ok, opsFrom375_ok⟩
theorem after_opsFrom374 (V : Valuation τ sig (Elt F)) : after (opsFrom374 : List (HloOp τ sig (Elt F))) V = after opsFrom375 (after stepOps374 V) := after_append _ _ V
abbrev opsFrom373 : List (HloOp τ sig (Elt F)) := stepOps373 ++ opsFrom374
theorem opsFrom373_ok : (opsFrom373 : List (HloOp τ sig (Elt F))).Forall (OpOk 10) := List.forall_append.mpr ⟨stepOps373_ok, opsFrom374_ok⟩
theorem after_opsFrom373 (V : Valuation τ sig (Elt F)) : after (opsFrom373 : List (HloOp τ sig (Elt F))) V = after opsFrom374 (after stepOps373 V) := after_append _ _ V
abbrev opsFrom372 : List (HloOp τ sig (Elt F)) := stepOps372 ++ opsFrom373
theorem opsFrom372_ok : (opsFrom372 : List (HloOp τ sig (Elt F))).Forall (OpOk 10) := List.forall_append.mpr ⟨stepOps372_ok, opsFrom373_ok⟩
theorem after_opsFrom372 (V : Valuation τ sig (Elt F)) : after (opsFrom372 : List (HloOp τ sig (Elt F))) V = after opsFrom373 (after stepOps372 V) := after_append _ _ V
abbrev opsFrom371 : List (HloOp τ sig (Elt F)) := stepOps371 ++ opsFrom372
theorem opsFrom371_ok : (opsFrom371 : List (HloOp τ sig (Elt F))).Forall (OpOk 10) := List.forall_append.mpr ⟨stepOps371_ok, opsFrom372_ok⟩
theorem after_opsFrom371 (V : Valuation τ sig (Elt F)) : after (opsFrom371 : List (HloOp τ sig (Elt F))) V = after opsFrom372 (after stepOps371 V) := after_append _ _ V
abbrev opsFrom370 : List (HloOp τ sig (Elt F)) := stepOps370 ++ opsFrom371
theorem opsFrom370_ok : (opsFrom370 : List (HloOp τ sig (Elt F))).Forall (OpOk 10) := List.forall_append.mpr ⟨stepOps370_ok, opsFrom371_ok⟩
theorem after_opsFrom370 (V : Valuation τ sig (Elt F)) : after (opsFrom370 : List (HloOp τ sig (Elt F))) V = after opsFrom371 (after stepOps370 V) := after_append _ _ V
abbrev opsFrom369 : List (HloOp τ sig (Elt F)) := stepOps369 ++ opsFrom370
theorem opsFrom369_ok : (opsFrom369 : List (HloOp τ sig (Elt F))).Forall (OpOk 10) := List.forall_append.mpr ⟨stepOps369_ok, opsFrom370_ok⟩
theorem after_opsFrom369 (V : Valuation τ sig (Elt F)) : after (opsFrom369 : List (HloOp τ sig (Elt F))) V = after opsFrom370 (after stepOps369 V) := after_append _ _ V
abbrev opsFrom368 : List (HloOp τ sig (Elt F)) := stepOps368 ++ opsFrom369
theorem opsFrom368_ok : (opsFrom368 : List (HloOp τ sig (Elt F))).Forall (OpOk 10) := List.forall_append.mpr ⟨stepOps368_ok, opsFrom369_ok⟩
theorem after_opsFrom368 (V : Valuation τ sig (Elt F)) : after (opsFrom368 : List (HloOp τ sig (Elt F))) V = after opsFrom369 (after stepOps368 V) := after_append _ _ V
abbrev opsFrom367 : List (HloOp τ sig (Elt F)) := stepOps367 ++ opsFrom368
theorem opsFrom367_ok : (opsFrom367 : List (HloOp τ sig (Elt F))).Forall (OpOk 10) := List.forall_append.mpr ⟨stepOps367_ok, opsFrom368_ok⟩
theorem after_opsFrom367 (V : Valuation τ sig (Elt F)) : after (opsFrom367 : List (HloOp τ sig (Elt F))) V = after opsFrom368 (after stepOps367 V) := after_append _ _ V
abbrev opsFrom366 : List (HloOp τ sig (Elt F)) := stepOps366 ++ opsFrom367
theorem opsFrom366_ok : (opsFrom366 : List (HloOp τ sig (Elt F))).Forall (OpOk 10) := List.forall_append.mpr ⟨stepOps366_ok, opsFrom367_ok⟩
theorem after_opsFrom366 (V : Valuation τ sig (Elt F)) : after (opsFrom366 : List (HloOp τ sig (Elt F))) V = after opsFrom367 (after stepOps366 V) := after_append _ _ V
abbrev opsFrom365 : List (HloOp τ sig (Elt F)) := stepOps365 ++ opsFrom366
theorem opsFrom365_ok : (opsFrom365 : List (HloOp τ sig (Elt F))).Forall (OpOk 10) := List.forall_append.mpr ⟨stepOps365_ok, opsFrom366_ok⟩
theorem after_opsFrom365 (V : Valuation τ sig (Elt F)) : after (opsFrom365 : List (HloOp τ sig (Elt F))) V = after opsFrom366 (after stepOps365 V) := after_append _ _ V
abbrev opsFrom364 : List (HloOp τ sig (Elt F)) := stepOps364 ++ opsFrom365
theorem opsFrom364_ok : (opsFrom364 : List (HloOp τ sig (Elt F))).Forall (OpOk 10) := List.forall_append.mpr ⟨stepOps364_ok, opsFrom365_ok⟩
theorem after_opsFrom364 (V : Valuation τ sig (Elt F)) : after (opsFrom364 : List (HloOp τ sig (Elt F))) V = after opsFrom365 (after stepOps364 V) := after_append _ _ V
abbrev opsFrom363 : List (HloOp τ sig (Elt F)) := stepOps363 ++ opsFrom364
theorem opsFrom363_ok : (opsFrom363 : List (HloOp τ sig (Elt F))).Forall (OpOk 10) := List.forall_append.mpr ⟨stepOps363_ok, opsFrom364_ok⟩
theorem after_opsFrom363 (V : Valuation τ sig (Elt F)) : after (opsFrom363 : List (HloOp τ sig (Elt F))) V = after opsFrom364 (after stepOps363 V) := after_append _ _ V
abbrev opsFrom362 : List (HloOp τ sig (Elt F)) := stepOps362 ++ opsFrom363
theorem opsFrom362_ok : (opsFrom362 : List (HloOp τ sig (Elt F))).Forall (OpOk 10) := List.forall_append.mpr ⟨stepOps362_ok, opsFrom363_ok⟩
theorem after_opsFrom362 (V : Valuation τ sig (Elt F)) : after (opsFrom362 : List (HloOp τ sig (Elt F))) V = after opsFrom363 (after stepOps362 V) := after_append _ _ V
abbrev opsFrom361 : List (HloOp τ sig (Elt F)) := stepOps361 ++ opsFrom362
theorem opsFrom361_ok : (opsFrom361 : List (HloOp τ sig (Elt F))).Forall (OpOk 10) := List.forall_append.mpr ⟨stepOps361_ok, opsFrom362_ok⟩
theorem after_opsFrom361 (V : Valuation τ sig (Elt F)) : after (opsFrom361 : List (HloOp τ sig (Elt F))) V = after opsFrom362 (after stepOps361 V) := after_append _ _ V
abbrev opsFrom360 : List (HloOp τ sig (Elt F)) := stepOps360 ++ opsFrom361
theorem opsFrom360_ok : (opsFrom360 : List (HloOp τ sig (Elt F))).Forall (OpOk 10) := List.forall_append.mpr ⟨stepOps360_ok, opsFrom361_ok⟩
theorem after_opsFrom360 (V : Valuation τ sig (Elt F)) : after (opsFrom360 : List (HloOp τ sig (Elt F))) V = after opsFrom361 (after stepOps360 V) := after_append _ _ V
abbrev opsFrom359 : List (HloOp τ sig (Elt F)) := stepOps359 ++ opsFrom360
theorem opsFrom359_ok : (opsFrom359 : List (HloOp τ sig (Elt F))).Forall (OpOk 10) := List.forall_append.mpr ⟨stepOps359_ok, opsFrom360_ok⟩
theorem after_opsFrom359 (V : Valuation τ sig (Elt F)) : after (opsFrom359 : List (HloOp τ sig (Elt F))) V = after opsFrom360 (after stepOps359 V) := after_append _ _ V
abbrev opsFrom358 : List (HloOp τ sig (Elt F)) := stepOps358 ++ opsFrom359
theorem opsFrom358_ok : (opsFrom358 : List (HloOp τ sig (Elt F))).Forall (OpOk 10) := List.forall_append.mpr ⟨stepOps358_ok, opsFrom359_ok⟩
theorem after_opsFrom358 (V : Valuation τ sig (Elt F)) : after (opsFrom358 : List (HloOp τ sig (Elt F))) V = after opsFrom359 (after stepOps358 V) := after_append _ _ V
abbrev opsFrom357 : List (HloOp τ sig (Elt F)) := stepOps357 ++ opsFrom358
theorem opsFrom357_ok : (opsFrom357 : List (HloOp τ sig (Elt F))).Forall (OpOk 10) := List.forall_append.mpr ⟨stepOps357_ok, opsFrom358_ok⟩
theorem after_opsFrom357 (V : Valuation τ sig (Elt F)) : after (opsFrom357 : List (HloOp τ sig (Elt F))) V = after opsFrom358 (after stepOps357 V) := after_append _ _ V
abbrev opsFrom356 : List (HloOp τ sig (Elt F)) := stepOps356 ++ opsFrom357
theorem opsFrom356_ok : (opsFrom356 : List (HloOp τ sig (Elt F))).Forall (OpOk 10) := List.forall_append.mpr ⟨stepOps356_ok, opsFrom357_ok⟩
theorem after_opsFrom356 (V : Valuation τ sig (Elt F)) : after (opsFrom356 : List (HloOp τ sig (Elt F))) V = after opsFrom357 (after stepOps356 V) := after_append _ _ V
abbrev opsFrom355 : List (HloOp τ sig (Elt F)) := stepOps355 ++ opsFrom356
theorem opsFrom355_ok : (opsFrom355 : List (HloOp τ sig (Elt F))).Forall (OpOk 10) := List.forall_append.mpr ⟨stepOps355_ok, opsFrom356_ok⟩
theorem after_opsFrom355 (V : Valuation τ sig (Elt F)) : after (opsFrom355 : List (HloOp τ sig (Elt F))) V = after opsFrom356 (after stepOps355 V) := after_append _ _ V
abbrev opsFrom354 : List (HloOp τ sig (Elt F)) := stepOps354 ++ opsFrom355
theorem opsFrom354_ok : (opsFrom354 : List (HloOp τ sig (Elt F))).Forall (OpOk 10) := List.forall_append.mpr ⟨stepOps354_ok, opsFrom355_ok⟩
theorem after_opsFrom354 (V : Valuation τ sig (Elt F)) : after (opsFrom354 : List (HloOp τ sig (Elt F))) V = after opsFrom355 (after stepOps354 V) := after_append _ _ V
abbrev opsFrom353 : List (HloOp τ sig (Elt F)) := stepOps353 ++ opsFrom354
theorem opsFrom353_ok : (opsFrom353 : List (HloOp τ sig (Elt F))).Forall (OpOk 10) := List.forall_append.mpr ⟨stepOps353_ok, opsFrom354_ok⟩
theorem after_opsFrom353 (V : Valuation τ sig (Elt F)) : after (opsFrom353 : List (HloOp τ sig (Elt F))) V = after opsFrom354 (after stepOps353 V) := after_append _ _ V
abbrev opsFrom352 : List (HloOp τ sig (Elt F)) := stepOps352 ++ opsFrom353
theorem opsFrom352_ok : (opsFrom352 : List (HloOp τ sig (Elt F))).Forall (OpOk 10) := List.forall_append.mpr ⟨stepOps352_ok, opsFrom353_ok⟩
theorem after_opsFrom352 (V : Valuation τ sig (Elt F)) : after (opsFrom352 : List (HloOp τ sig (Elt F))) V = after opsFrom353 (after stepOps352 V) := after_append _ _ V
abbrev opsFrom351 : List (HloOp τ sig (Elt F)) := stepOps351 ++ opsFrom352
theorem opsFrom351_ok : (opsFrom351 : List (HloOp τ sig (Elt F))).Forall (OpOk 10) := List.forall_append.mpr ⟨stepOps351_ok, opsFrom352_ok⟩
theorem after_opsFrom351 (V : Valuation τ sig (Elt F)) : after (opsFrom351 : List (HloOp τ sig (Elt F))) V = after opsFrom352 (after stepOps351 V) := after_append _ _ V
abbrev opsFrom350 : List (HloOp τ sig (Elt F)) := stepOps350 ++ opsFrom351
theorem opsFrom350_ok : (opsFrom350 : List (HloOp τ sig (Elt F))).Forall (OpOk 10) := List.forall_append.mpr ⟨stepOps350_ok, opsFrom351_ok⟩
theorem after_opsFrom350 (V : Valuation τ sig (Elt F)) : after (opsFrom350 : List (HloOp τ sig (Elt F))) V = after opsFrom351 (after stepOps350 V) := after_append _ _ V
abbrev opsFrom349 : List (HloOp τ sig (Elt F)) := stepOps349 ++ opsFrom350
theorem opsFrom349_ok : (opsFrom349 : List (HloOp τ sig (Elt F))).Forall (OpOk 10) := List.forall_append.mpr ⟨stepOps349_ok, opsFrom350_ok⟩
theorem after_opsFrom349 (V : Valuation τ sig (Elt F)) : after (opsFrom349 : List (HloOp τ sig (Elt F))) V = after opsFrom350 (after stepOps349 V) := after_append _ _ V
abbrev opsFrom348 : List (HloOp τ sig (Elt F)) := stepOps348 ++ opsFrom349
theorem opsFrom348_ok : (opsFrom348 : List (HloOp τ sig (Elt F))).Forall (OpOk 10) := List.forall_append.mpr ⟨stepOps348_ok, opsFrom349_ok⟩
theorem after_opsFrom348 (V : Valuation τ sig (Elt F)) : after (opsFrom348 : List (HloOp τ sig (Elt F))) V = after opsFrom349 (after stepOps348 V) := after_append _ _ V
abbrev opsFrom347 : List (HloOp τ sig (Elt F)) := stepOps347 ++ opsFrom348
theorem opsFrom347_ok : (opsFrom347 : List (HloOp τ sig (Elt F))).Forall (OpOk 10) := List.forall_append.mpr ⟨stepOps347_ok, opsFrom348_ok⟩
theorem after_opsFrom347 (V : Valuation τ sig (Elt F)) : after (opsFrom347 : List (HloOp τ sig (Elt F))) V = after opsFrom348 (after stepOps347 V) := after_append _ _ V
abbrev opsFrom346 : List (HloOp τ sig (Elt F)) := stepOps346 ++ opsFrom347
theorem opsFrom346_ok : (opsFrom346 : List (HloOp τ sig (Elt F))).Forall (OpOk 10) := List.forall_append.mpr ⟨stepOps346_ok, opsFrom347_ok⟩
theorem after_opsFrom346 (V : Valuation τ sig (Elt F)) : after (opsFrom346 : List (HloOp τ sig (Elt F))) V = after opsFrom347 (after stepOps346 V) := after_append _ _ V
abbrev opsFrom345 : List (HloOp τ sig (Elt F)) := stepOps345 ++ opsFrom346
theorem opsFrom345_ok : (opsFrom345 : List (HloOp τ sig (Elt F))).Forall (OpOk 10) := List.forall_append.mpr ⟨stepOps345_ok, opsFrom346_ok⟩
theorem after_opsFrom345 (V : Valuation τ sig (Elt F)) : after (opsFrom345 : List (HloOp τ sig (Elt F))) V = after opsFrom346 (after stepOps345 V) := after_append _ _ V
abbrev opsFrom344 : List (HloOp τ sig (Elt F)) := stepOps344 ++ opsFrom345
theorem opsFrom344_ok : (opsFrom344 : List (HloOp τ sig (Elt F))).Forall (OpOk 10) := List.forall_append.mpr ⟨stepOps344_ok, opsFrom345_ok⟩
theorem after_opsFrom344 (V : Valuation τ sig (Elt F)) : after (opsFrom344 : List (HloOp τ sig (Elt F))) V = after opsFrom345 (after stepOps344 V) := after_append _ _ V
abbrev opsFrom343 : List (HloOp τ sig (Elt F)) := stepOps343 ++ opsFrom344
theorem opsFrom343_ok : (opsFrom343 : List (HloOp τ sig (Elt F))).Forall (OpOk 10) := List.forall_append.mpr ⟨stepOps343_ok, opsFrom344_ok⟩
theorem after_opsFrom343 (V : Valuation τ sig (Elt F)) : after (opsFrom343 : List (HloOp τ sig (Elt F))) V = after opsFrom344 (after stepOps343 V) := after_append _ _ V
abbrev opsFrom342 : List (HloOp τ sig (Elt F)) := stepOps342 ++ opsFrom343
theorem opsFrom342_ok : (opsFrom342 : List (HloOp τ sig (Elt F))).Forall (OpOk 10) := List.forall_append.mpr ⟨stepOps342_ok, opsFrom343_ok⟩
theorem after_opsFrom342 (V : Valuation τ sig (Elt F)) : after (opsFrom342 : List (HloOp τ sig (Elt F))) V = after opsFrom343 (after stepOps342 V) := after_append _ _ V
abbrev opsFrom341 : List (HloOp τ sig (Elt F)) := stepOps341 ++ opsFrom342
theorem opsFrom341_ok : (opsFrom341 : List (HloOp τ sig (Elt F))).Forall (OpOk 10) := List.forall_append.mpr ⟨stepOps341_ok, opsFrom342_ok⟩
theorem after_opsFrom341 (V : Valuation τ sig (Elt F)) : after (opsFrom341 : List (HloOp τ sig (Elt F))) V = after opsFrom342 (after stepOps341 V) := after_append _ _ V
abbrev opsFrom340 : List (HloOp τ sig (Elt F)) := stepOps340 ++ opsFrom341
theorem opsFrom340_ok : (opsFrom340 : List (HloOp τ sig (Elt F))).Forall (OpOk 10) := List.forall_append.mpr ⟨stepOps340_ok, opsFrom341_ok⟩
theorem after_opsFrom340 (V : Valuation τ sig (Elt F)) : after (opsFrom340 : List (HloOp τ sig (Elt F))) V = after opsFrom341 (after stepOps340 V) := after_append _ _ V
abbrev opsFrom339 : List (HloOp τ sig (Elt F)) := stepOps339 ++ opsFrom340
theorem opsFrom339_ok : (opsFrom339 : List (HloOp τ sig (Elt F))).Forall (OpOk 10) := List.forall_append.mpr ⟨stepOps339_ok, opsFrom340_ok⟩
theorem after_opsFrom339 (V : Valuation τ sig (Elt F)) : after (opsFrom339 : List (HloOp τ sig (Elt F))) V = after opsFrom340 (after stepOps339 V) := after_append _ _ V
abbrev opsFrom338 : List (HloOp τ sig (Elt F)) := stepOps338 ++ opsFrom339
theorem opsFrom338_ok : (opsFrom338 : List (HloOp τ sig (Elt F))).Forall (OpOk 10) := List.forall_append.mpr ⟨stepOps338_ok, opsFrom339_ok⟩
theorem after_opsFrom338 (V : Valuation τ sig (Elt F)) : after (opsFrom338 : List (HloOp τ sig (Elt F))) V = after opsFrom339 (after stepOps338 V) := after_append _ _ V
abbrev opsFrom337 : List (HloOp τ sig (Elt F)) := stepOps337 ++ opsFrom338
theorem opsFrom337_ok : (opsFrom337 : List (HloOp τ sig (Elt F))).Forall (OpOk 10) := List.forall_append.mpr ⟨stepOps337_ok, opsFrom338_ok⟩
theorem after_opsFrom337 (V : Valuation τ sig (Elt F)) : after (opsFrom337 : List (HloOp τ sig (Elt F))) V = after opsFrom338 (after stepOps337 V) := after_append _ _ V
abbrev opsFrom336 : List (HloOp τ sig (Elt F)) := stepOps336 ++ opsFrom337
theorem opsFrom336_ok : (opsFrom336 : List (HloOp τ sig (Elt F))).Forall (OpOk 10) := List.forall_append.mpr ⟨stepOps336_ok, opsFrom337_ok⟩
theorem after_opsFrom336 (V : Valuation τ sig (Elt F)) : after (opsFrom336 : List (HloOp τ sig (Elt F))) V = after opsFrom337 (after stepOps336 V) := after_append _ _ V
abbrev opsFrom335 : List (HloOp τ sig (Elt F)) := stepOps335 ++ opsFrom336
theorem opsFrom335_ok : (opsFrom335 : List (HloOp τ sig (Elt F))).Forall (OpOk 10) := List.forall_append.mpr ⟨stepOps335_ok, opsFrom336_ok⟩
theorem after_opsFrom335 (V : Valuation τ sig (Elt F)) : after (opsFrom335 : List (HloOp τ sig (Elt F))) V = after opsFrom336 (after stepOps335 V) := after_append _ _ V
abbrev opsFrom334 : List (HloOp τ sig (Elt F)) := stepOps334 ++ opsFrom335
theorem opsFrom334_ok : (opsFrom334 : List (HloOp τ sig (Elt F))).Forall (OpOk 10) := List.forall_append.mpr ⟨stepOps334_ok, opsFrom335_ok⟩
theorem after_opsFrom334 (V : Valuation τ sig (Elt F)) : after (opsFrom334 : List (HloOp τ sig (Elt F))) V = after opsFrom335 (after stepOps334 V) := after_append _ _ V
abbrev opsFrom333 : List (HloOp τ sig (Elt F)) := stepOps333 ++ opsFrom334
theorem opsFrom333_ok : (opsFrom333 : List (HloOp τ sig (Elt F))).Forall (OpOk 10) := List.forall_append.mpr ⟨stepOps333_ok, opsFrom334_ok⟩
theorem after_opsFrom333 (V : Valuation τ sig (Elt F)) : after (opsFrom333 : List (HloOp τ sig (Elt F))) V = after opsFrom334 (after stepOps333 V) := after_append _ _ V
abbrev opsFrom332 : List (HloOp τ sig (Elt F)) := stepOps332 ++ opsFrom333
theorem opsFrom332_ok : (opsFrom332 : List (HloOp τ sig (Elt F))).Forall (OpOk 10) := List.forall_append.mpr ⟨stepOps332_ok, opsFrom333_ok⟩
theorem after_opsFrom332 (V : Valuation τ sig (Elt F)) : after (opsFrom332 : List (HloOp τ sig (Elt F))) V = after opsFrom333 (after stepOps332 V) := after_append _ _ V
abbrev opsFrom331 : List (HloOp τ sig (Elt F)) := stepOps331 ++ opsFrom332
theorem opsFrom331_ok : (opsFrom331 : List (HloOp τ sig (Elt F))).Forall (OpOk 10) := List.forall_append.mpr ⟨stepOps331_ok, opsFrom332_ok⟩
theorem after_opsFrom331 (V : Valuation τ sig (Elt F)) : after (opsFrom331 : List (HloOp τ sig (Elt F))) V = after opsFrom332 (after stepOps331 V) := after_append _ _ V
abbrev opsFrom330 : List (HloOp τ sig (Elt F)) := stepOps330 ++ opsFrom331
theorem opsFrom330_ok : (opsFrom330 : List (HloOp τ sig (Elt F))).Forall (OpOk 10) := List.forall_append.mpr ⟨stepOps330_ok, opsFrom331_ok⟩
theorem after_opsFrom330 (V : Valuation τ sig (Elt F)) : after (opsFrom330 : List (HloOp τ sig (Elt F))) V = after opsFrom331 (after stepOps330 V) := after_append _ _ V
abbrev opsFrom329 : List (HloOp τ sig (Elt F)) := stepOps329 ++ opsFrom330
theorem opsFrom329_ok : (opsFrom329 : List (HloOp τ sig (Elt F))).Forall (OpOk 10) := List.forall_append.mpr ⟨stepOps329_ok, opsFrom330_ok⟩
theorem after_opsFrom329 (V : Valuation τ sig (Elt F)) : after (opsFrom329 : List (HloOp τ sig (Elt F))) V = after opsFrom330 (after stepOps329 V) := after_append _ _ V
abbrev opsFrom328 : List (HloOp τ sig (Elt F)) := stepOps328 ++ opsFrom329
theorem opsFrom328_ok : (opsFrom328 : List (HloOp τ sig (Elt F))).Forall (OpOk 10) := List.forall_append.mpr ⟨stepOps328_ok, opsFrom329_ok⟩
theorem after_opsFrom328 (V : Valuation τ sig (Elt F)) : after (opsFrom328 : List (HloOp τ sig (Elt F))) V = after opsFrom329 (after stepOps328 V) := after_append _ _ V
abbrev opsFrom327 : List (HloOp τ sig (Elt F)) := stepOps327 ++ opsFrom328
theorem opsFrom327_ok : (opsFrom327 : List (HloOp τ sig (Elt F))).Forall (OpOk 10) := List.forall_append.mpr ⟨stepOps327_ok, opsFrom328_ok⟩
theorem after_opsFrom327 (V : Valuation τ sig (Elt F)) : after (opsFrom327 : List (HloOp τ sig (Elt F))) V = after opsFrom328 (after stepOps327 V) := after_append _ _ V
abbrev opsFrom326 : List (HloOp τ sig (Elt F)) := stepOps326 ++ opsFrom327
theorem opsFrom326_ok : (opsFrom326 : List (HloOp τ sig (Elt F))).Forall (OpOk 10) := List.forall_append.mpr ⟨stepOps326_ok, opsFrom327_ok⟩
theorem after_opsFrom326 (V : Valuation τ sig (Elt F)) : after (opsFrom326 : List (HloOp τ sig (Elt F))) V = after opsFrom327 (after stepOps326 V) := after_append _ _ V
abbrev opsFrom325 : List (HloOp τ sig (Elt F)) := stepOps325 ++ opsFrom326
theorem opsFrom325_ok : (opsFrom325 : List (HloOp τ sig (Elt F))).Forall (OpOk 10) := List.forall_append.mpr ⟨stepOps325_ok, opsFrom326_ok⟩
theorem after_opsFrom325 (V : Valuation τ sig (Elt F)) : after (opsFrom325 : List (HloOp τ sig (Elt F))) V = after opsFrom326 (after stepOps325 V) := after_append _ _ V
abbrev opsFrom324 : List (HloOp τ sig (Elt F)) := stepOps324 ++ opsFrom325
theorem opsFrom324_ok : (opsFrom324 : List (HloOp τ sig (Elt F))).Forall (OpOk 10) := List.forall_append.mpr ⟨stepOps324_ok, opsFrom325_ok⟩
theorem after_opsFrom324 (V : Valuation τ sig (Elt F)) : after (opsFrom324 : List (HloOp τ sig (Elt F))) V = after opsFrom325 (after stepOps324 V) := after_append _ _ V
abbrev opsFrom323 : List (HloOp τ sig (Elt F)) := stepOps323 ++ opsFrom324
theorem opsFrom323_ok : (opsFrom323 : List (HloOp τ sig (Elt F))).Forall (OpOk 10) := List.forall_append.mpr ⟨stepOps323_ok, opsFrom324_ok⟩
theorem after_opsFrom323 (V : Valuation τ sig (Elt F)) : after (opsFrom323 : List (HloOp τ sig (Elt F))) V = after opsFrom324 (after stepOps323 V) := after_append _ _ V
abbrev opsFrom322 : List (HloOp τ sig (Elt F)) := stepOps322 ++ opsFrom323
theorem opsFrom322_ok : (opsFrom322 : List (HloOp τ sig (Elt F))).Forall (OpOk 10) := List.forall_append.mpr ⟨stepOps322_ok, opsFrom323_ok⟩
theorem after_opsFrom322 (V : Valuation τ sig (Elt F)) : after (opsFrom322 : List (HloOp τ sig (Elt F))) V = after opsFrom323 (after stepOps322 V) := after_append _ _ V
abbrev opsFrom321 : List (HloOp τ sig (Elt F)) := stepOps321 ++ opsFrom322
theorem opsFrom321_ok : (opsFrom321 : List (HloOp τ sig (Elt F))).Forall (OpOk 10) := List.forall_append.mpr ⟨stepOps321_ok, opsFrom322_ok⟩
theorem after_opsFrom321 (V : Valuation τ sig (Elt F)) : after (opsFrom321 : List (HloOp τ sig (Elt F))) V = after opsFrom322 (after stepOps321 V) := after_append _ _ V
abbrev opsFrom320 : List (HloOp τ sig (Elt F)) := stepOps320 ++ opsFrom321
theorem opsFrom320_ok : (opsFrom320 : List (HloOp τ sig (Elt F))).Forall (OpOk 10) := List.forall_append.mpr ⟨stepOps320_ok, opsFrom321_ok⟩
theorem after_opsFrom320 (V : Valuation τ sig (Elt F)) : after (opsFrom320 : List (HloOp τ sig (Elt F))) V = after opsFrom321 (after stepOps320 V) := after_append _ _ V
abbrev opsFrom319 : List (HloOp τ sig (Elt F)) := stepOps319 ++ opsFrom320
theorem opsFrom319_ok : (opsFrom319 : List (HloOp τ sig (Elt F))).Forall (OpOk 10) := List.forall_append.mpr ⟨stepOps319_ok, opsFrom320_ok⟩
theorem after_opsFrom319 (V : Valuation τ sig (Elt F)) : after (opsFrom319 : List (HloOp τ sig (Elt F))) V = after opsFrom320 (after stepOps319 V) := after_append _ _ V
abbrev opsFrom318 : List (HloOp τ sig (Elt F)) := stepOps318 ++ opsFrom319
theorem opsFrom318_ok : (opsFrom318 : List (HloOp τ sig (Elt F))).Forall (OpOk 10) := List.forall_append.mpr ⟨stepOps318_ok, opsFrom319_ok⟩
theorem after_opsFrom318 (V : Valuation τ sig (Elt F)) : after (opsFrom318 : List (HloOp τ sig (Elt F))) V = after opsFrom319 (after stepOps318 V) := after_append _ _ V
abbrev opsFrom317 : List (HloOp τ sig (Elt F)) := stepOps317 ++ opsFrom318
theorem opsFrom317_ok : (opsFrom317 : List (HloOp τ sig (Elt F))).Forall (OpOk 10) := List.forall_append.mpr ⟨stepOps317_ok, opsFrom318_ok⟩
theorem after_opsFrom317 (V : Valuation τ sig (Elt F)) : after (opsFrom317 : List (HloOp τ sig (Elt F))) V = after opsFrom318 (after stepOps317 V) := after_append _ _ V
abbrev opsFrom316 : List (HloOp τ sig (Elt F)) := stepOps316 ++ opsFrom317
theorem opsFrom316_ok : (opsFrom316 : List (HloOp τ sig (Elt F))).Forall (OpOk 10) := List.forall_append.mpr ⟨stepOps316_ok, opsFrom317_ok⟩
theorem after_opsFrom316 (V : Valuation τ sig (Elt F)) : after (opsFrom316 : List (HloOp τ sig (Elt F))) V = after opsFrom317 (after stepOps316 V) := after_append _ _ V
abbrev opsFrom315 : List (HloOp τ sig (Elt F)) := stepOps315 ++ opsFrom316
theorem opsFrom315_ok : (opsFrom315 : List (HloOp τ sig (Elt F))).Forall (OpOk 10) := List.forall_append.mpr ⟨stepOps315_ok, opsFrom316_ok⟩
theorem after_opsFrom315 (V : Valuation τ sig (Elt F)) : after (opsFrom315 : List (HloOp τ sig (Elt F))) V = after opsFrom316 (after stepOps315 V) := after_append _ _ V
abbrev opsFrom314 : List (HloOp τ sig (Elt F)) := stepOps314 ++ opsFrom315
theorem opsFrom314_ok : (opsFrom314 : List (HloOp τ sig (Elt F))).Forall (OpOk 10) := List.forall_append.mpr ⟨stepOps314_ok, opsFrom315_ok⟩
theorem after_opsFrom314 (V : Valuation τ sig (Elt F)) : after (opsFrom314 : List (HloOp τ sig (Elt F))) V = after opsFrom315 (after stepOps314 V) := after_append _ _ V
abbrev opsFrom313 : List (HloOp τ sig (Elt F)) := stepOps313 ++ opsFrom314
theorem opsFrom313_ok : (opsFrom313 : List (HloOp τ sig (Elt F))).Forall (OpOk 10) := List.forall_append.mpr ⟨stepOps313_ok, opsFrom314_ok⟩
theorem after_opsFrom313 (V : Valuation τ sig (Elt F)) : after (opsFrom313 : List (HloOp τ sig (Elt F))) V = after opsFrom314 (after stepOps313 V) := after_append _ _ V
abbrev opsFrom312 : List (HloOp τ sig (Elt F)) := stepOps312 ++ opsFrom313
theorem opsFrom312_ok : (opsFrom312 : List (HloOp τ sig (Elt F))).Forall (OpOk 10) := List.forall_append.mpr ⟨stepOps312_ok, opsFrom313_ok⟩
theorem after_opsFrom312 (V : Valuation τ sig (Elt F)) : after (opsFrom312 : List (HloOp τ sig (Elt F))) V = after opsFrom313 (after stepOps312 V) := after_append _ _ V
abbrev opsFrom311 : List (HloOp τ sig (Elt F)) := stepOps311 ++ opsFrom312
theorem opsFrom311_ok : (opsFrom311 : List (HloOp τ sig (Elt F))).Forall (OpOk 10) := List.forall_append.mpr ⟨stepOps311_ok, opsFrom312_ok⟩
theorem after_opsFrom311 (V : Valuation τ sig (Elt F)) : after (opsFrom311 : List (HloOp τ sig (Elt F))) V = after opsFrom312 (after stepOps311 V) := after_append _ _ V
abbrev opsFrom310 : List (HloOp τ sig (Elt F)) := stepOps310 ++ opsFrom311
theorem opsFrom310_ok : (opsFrom310 : List (HloOp τ sig (Elt F))).Forall (OpOk 10) := List.forall_append.mpr ⟨stepOps310_ok, opsFrom311_ok⟩
theorem after_opsFrom310 (V : Valuation τ sig (Elt F)) : after (opsFrom310 : List (HloOp τ sig (Elt F))) V = after opsFrom311 (after stepOps310 V) := after_append _ _ V
abbrev opsFrom309 : List (HloOp τ sig (Elt F)) := stepOps309 ++ opsFrom310
theorem opsFrom309_ok : (opsFrom309 : List (HloOp τ sig (Elt F))).Forall (OpOk 10) := List.forall_append.mpr ⟨stepOps309_ok, opsFrom310_ok⟩
theorem after_opsFrom309 (V : Valuation τ sig (Elt F)) : after (opsFrom309 : List (HloOp τ sig (Elt F))) V = after opsFrom310 (after stepOps309 V) := after_append _ _ V
abbrev opsFrom308 : List (HloOp τ sig (Elt F)) := stepOps308 ++ opsFrom309
theorem opsFrom308_ok : (opsFrom308 : List (HloOp τ sig (Elt F))).Forall (OpOk 10) := List.forall_append.mpr ⟨stepOps308_ok, opsFrom309_ok⟩
theorem after_opsFrom308 (V : Valuation τ sig (Elt F)) : after (opsFrom308 : List (HloOp τ sig (Elt F))) V = after opsFrom309 (after stepOps308 V) := after_append _ _ V
abbrev opsFrom307 : List (HloOp τ sig (Elt F)) := stepOps307 ++ opsFrom308
theorem opsFrom307_ok : (opsFrom307 : List (HloOp τ sig (Elt F))).Forall (OpOk 10) := List.forall_append.mpr ⟨stepOps307_ok, opsFrom308_ok⟩
theorem after_opsFrom307 (V : Valuation τ sig (Elt F)) : after (opsFrom307 : List (HloOp τ sig (Elt F))) V = after opsFrom308 (after stepOps307 V) := after_append _ _ V
abbrev opsFrom306 : List (HloOp τ sig (Elt F)) := stepOps306 ++ opsFrom307
theorem opsFrom306_ok : (opsFrom306 : List (HloOp τ sig (Elt F))).Forall (OpOk 10) := List.forall_append.mpr ⟨stepOps306_ok, opsFrom307_ok⟩
theorem after_opsFrom306 (V : Valuation τ sig (Elt F)) : after (opsFrom306 : List (HloOp τ sig (Elt F))) V = after opsFrom307 (after stepOps306 V) := after_append _ _ V
abbrev opsFrom305 : List (HloOp τ sig (Elt F)) := stepOps305 ++ opsFrom306
theorem opsFrom305_ok : (opsFrom305 : List (HloOp τ sig (Elt F))).Forall (OpOk 10) := List.forall_append.mpr ⟨stepOps305_ok, opsFrom306_ok⟩
theorem after_opsFrom305 (V : Valuation τ sig (Elt F)) : after (opsFrom305 : List (HloOp τ sig (Elt F))) V = after opsFrom306 (after stepOps305 V) := after_append _ _ V
abbrev opsFrom304 : List (HloOp τ sig (Elt F)) := stepOps304 ++ opsFrom305
theorem opsFrom304_ok : (opsFrom304 : List (HloOp τ sig (Elt F))).Forall (OpOk 10) := List.forall_append.mpr ⟨stepOps304_ok, opsFrom305_ok⟩
theorem after_opsFrom304 (V : Valuation τ sig (Elt F)) : after (opsFrom304 : List (HloOp τ sig (Elt F))) V = after opsFrom305 (after stepOps304 V) := after_append _ _ V
abbrev opsFrom303 : List (HloOp τ sig (Elt F)) := stepOps303 ++ opsFrom304
theorem opsFrom303_ok : (opsFrom303 : List (HloOp τ sig (Elt F))).Forall (OpOk 10) := List.forall_append.mpr ⟨stepOps303_ok, opsFrom304_ok⟩
theorem after_opsFrom303 (V : Valuation τ sig (Elt F)) : after (opsFrom303 : List (HloOp τ sig (Elt F))) V = after opsFrom304 (after stepOps303 V) := after_append _ _ V
abbrev opsFrom302 : List (HloOp τ sig (Elt F)) := stepOps302 ++ opsFrom303
theorem opsFrom302_ok : (opsFrom302 : List (HloOp τ sig (Elt F))).Forall (OpOk 10) := List.forall_append.mpr ⟨stepOps302_ok, opsFrom303_ok⟩
theorem after_opsFrom302 (V : Valuation τ sig (Elt F)) : after (opsFrom302 : List (HloOp τ sig (Elt F))) V = after opsFrom303 (after stepOps302 V) := after_append _ _ V
abbrev opsFrom301 : List (HloOp τ sig (Elt F)) := stepOps301 ++ opsFrom302
theorem opsFrom301_ok : (opsFrom301 : List (HloOp τ sig (Elt F))).Forall (OpOk 10) := List.forall_append.mpr ⟨stepOps301_ok, opsFrom302_ok⟩
theorem after_opsFrom301 (V : Valuation τ sig (Elt F)) : after (opsFrom301 : List (HloOp τ sig (Elt F))) V = after opsFrom302 (after stepOps301 V) := after_append _ _ V
abbrev opsFrom300 : List (HloOp τ sig (Elt F)) := stepOps300 ++ opsFrom301
theorem opsFrom300_ok : (opsFrom300 : List (HloOp τ sig (Elt F))).Forall (OpOk 10) := List.forall_append.mpr ⟨stepOps300_ok, opsFrom301_ok⟩
theorem after_opsFrom300 (V : Valuation τ sig (Elt F)) : after (opsFrom300 : List (HloOp τ sig (Elt F))) V = after opsFrom301 (after stepOps300 V) := after_append _ _ V
abbrev opsFrom299 : List (HloOp τ sig (Elt F)) := stepOps299 ++ opsFrom300
theorem opsFrom299_ok : (opsFrom299 : List (HloOp τ sig (Elt F))).Forall (OpOk 10) := List.forall_append.mpr ⟨stepOps299_ok, opsFrom300_ok⟩
theorem after_opsFrom299 (V : Valuation τ sig (Elt F)) : after (opsFrom299 : List (HloOp τ sig (Elt F))) V = after opsFrom300 (after stepOps299 V) := after_append _ _ V
abbrev opsFrom298 : List (HloOp τ sig (Elt F)) := stepOps298 ++ opsFrom299
theorem opsFrom298_ok : (opsFrom298 : List (HloOp τ sig (Elt F))).Forall (OpOk 10) := List.forall_append.mpr ⟨stepOps298_ok, opsFrom299_ok⟩
theorem after_opsFrom298 (V : Valuation τ sig (Elt F)) : after (opsFrom298 : List (HloOp τ sig (Elt F))) V = after opsFrom299 (after stepOps298 V) := after_append _ _ V
abbrev opsFrom297 : List (HloOp τ sig (Elt F)) := stepOps297 ++ opsFrom298
theorem opsFrom297_ok : (opsFrom297 : List (HloOp τ sig (Elt F))).Forall (OpOk 10) := List.forall_append.mpr ⟨stepOps297_ok, opsFrom298_ok⟩
theorem after_opsFrom297 (V : Valuation τ sig (Elt F)) : after (opsFrom297 : List (HloOp τ sig (Elt F))) V = after opsFrom298 (after stepOps297 V) := after_append _ _ V
abbrev opsFrom296 : List (HloOp τ sig (Elt F)) := stepOps296 ++ opsFrom297
theorem opsFrom296_ok : (opsFrom296 : List (HloOp τ sig (Elt F))).Forall (OpOk 10) := List.forall_append.mpr ⟨stepOps296_ok, opsFrom297_ok⟩
theorem after_opsFrom296 (V : Valuation τ sig (Elt F)) : after (opsFrom296 : List (HloOp τ sig (Elt F))) V = after opsFrom297 (after stepOps296 V) := after_append _ _ V
abbrev opsFrom295 : List (HloOp τ sig (Elt F)) := stepOps295 ++ opsFrom296
theorem opsFrom295_ok : (opsFrom295 : List (HloOp τ sig (Elt F))).Forall (OpOk 10) := List.forall_append.mpr ⟨stepOps295_ok, opsFrom296_ok⟩
theorem after_opsFrom295 (V : Valuation τ sig (Elt F)) : after (opsFrom295 : List (HloOp τ sig (Elt F))) V = after opsFrom296 (after stepOps295 V) := after_append _ _ V
abbrev opsFrom294 : List (HloOp τ sig (Elt F)) := stepOps294 ++ opsFrom295
theorem opsFrom294_ok : (opsFrom294 : List (HloOp τ sig (Elt F))).Forall (OpOk 10) := List.forall_append.mpr ⟨stepOps294_ok, opsFrom295_ok⟩
theorem after_opsFrom294 (V : Valuation τ sig (Elt F)) : after (opsFrom294 : List (HloOp τ sig (Elt F))) V = after opsFrom295 (after stepOps294 V) := after_append _ _ V
abbrev opsFrom293 : List (HloOp τ sig (Elt F)) := stepOps293 ++ opsFrom294
theorem opsFrom293_ok : (opsFrom293 : List (HloOp τ sig (Elt F))).Forall (OpOk 10) := List.forall_append.mpr ⟨stepOps293_ok, opsFrom294_ok⟩
theorem after_opsFrom293 (V : Valuation τ sig (Elt F)) : after (opsFrom293 : List (HloOp τ sig (Elt F))) V = after opsFrom294 (after stepOps293 V) := after_append _ _ V
abbrev opsFrom292 : List (HloOp τ sig (Elt F)) := stepOps292 ++ opsFrom293
theorem opsFrom292_ok : (opsFrom292 : List (HloOp τ sig (Elt F))).Forall (OpOk 10) := List.forall_append.mpr ⟨stepOps292_ok, opsFrom293_ok⟩
theorem after_opsFrom292 (V : Valuation τ sig (Elt F)) : after (opsFrom292 : List (HloOp τ sig (Elt F))) V = after opsFrom293 (after stepOps292 V) := after_append _ _ V
abbrev opsFrom291 : List (HloOp τ sig (Elt F)) := stepOps291 ++ opsFrom292
theorem opsFrom291_ok : (opsFrom291 : List (HloOp τ sig (Elt F))).Forall (OpOk 10) := List.forall_append.mpr ⟨stepOps291_ok, opsFrom292_ok⟩
theorem after_opsFrom291 (V : Valuation τ sig (Elt F)) : after (opsFrom291 : List (HloOp τ sig (Elt F))) V = after opsFrom292 (after stepOps291 V) := after_append _ _ V
abbrev opsFrom290 : List (HloOp τ sig (Elt F)) := stepOps290 ++ opsFrom291
theorem opsFrom290_ok : (opsFrom290 : List (HloOp τ sig (Elt F))).Forall (OpOk 10) := List.forall_append.mpr ⟨stepOps290_ok, opsFrom291_ok⟩
theorem after_opsFrom290 (V : Valuation τ sig (Elt F)) : after (opsFrom290 : List (HloOp τ sig (Elt F))) V = after opsFrom291 (after stepOps290 V) := after_append _ _ V
abbrev opsFrom289 : List (HloOp τ sig (Elt F)) := stepOps289 ++ opsFrom290
theorem opsFrom289_ok : (opsFrom289 : List (HloOp τ sig (Elt F))).Forall (OpOk 10) := List.forall_append.mpr ⟨stepOps289_ok, opsFrom290_ok⟩
theorem after_opsFrom289 (V : Valuation τ sig (Elt F)) : after (opsFrom289 : List (HloOp τ sig (Elt F))) V = after opsFrom290 (after stepOps289 V) := after_append _ _ V
abbrev opsFrom288 : List (HloOp τ sig (Elt F)) := stepOps288 ++ opsFrom289
theorem opsFrom288_ok : (opsFrom288 : List (HloOp τ sig (Elt F))).Forall (OpOk 10) := List.forall_append.mpr ⟨stepOps288_ok, opsFrom289_ok⟩
theorem after_opsFrom288 (V : Valuation τ sig (Elt F)) : after (opsFrom288 : List (HloOp τ sig (Elt F))) V = after opsFrom289 (after stepOps288 V) := after_append _ _ V
abbrev opsFrom287 : List (HloOp τ sig (Elt F)) := stepOps287 ++ opsFrom288
theorem opsFrom287_ok : (opsFrom287 : List (HloOp τ sig (Elt F))).Forall (OpOk 10) := List.forall_append.mpr ⟨stepOps287_ok, opsFrom288_ok⟩
theorem after_opsFrom287 (V : Valuation τ sig (Elt F)) : after (opsFrom287 : List (HloOp τ sig (Elt F))) V = after opsFrom288 (after stepOps287 V) := after_append _ _ V
abbrev opsFrom286 : List (HloOp τ sig (Elt F)) := stepOps286 ++ opsFrom287
theorem opsFrom286_ok : (opsFrom286 : List (HloOp τ sig (Elt F))).Forall (OpOk 10) := List.forall_append.mpr ⟨stepOps286_ok, opsFrom287_ok⟩
theorem after_opsFrom286 (V : Valuation τ sig (Elt F)) : after (opsFrom286 : List (HloOp τ sig (Elt F))) V = after opsFrom287 (after stepOps286 V) := after_append _ _ V
abbrev opsFrom285 : List (HloOp τ sig (Elt F)) := stepOps285 ++ opsFrom286
theorem opsFrom285_ok : (opsFrom285 : List (HloOp τ sig (Elt F))).Forall (OpOk 10) := List.forall_append.mpr ⟨stepOps285_ok, opsFrom286_ok⟩
theorem after_opsFrom285 (V : Valuation τ sig (Elt F)) : after (opsFrom285 : List (HloOp τ sig (Elt F))) V = after opsFrom286 (after stepOps285 V) := after_append _ _ V
abbrev opsFrom284 : List (HloOp τ sig (Elt F)) := stepOps284 ++ opsFrom285
theorem opsFrom284_ok : (opsFrom284 : List (HloOp τ sig (Elt F))).Forall (OpOk 10) := List.forall_append.mpr ⟨stepOps284_ok, opsFrom285_ok⟩
theorem after_opsFrom284 (V : Valuation τ sig (Elt F)) : after (opsFrom284 : List (HloOp τ sig (Elt F))) V = after opsFrom285 (after stepOps284 V) := after_append _ _ V
abbrev opsFrom283 : List (HloOp τ sig (Elt F)) := stepOps283 ++ opsFrom284
theorem opsFrom283_ok : (opsFrom283 : List (HloOp τ sig (Elt F))).Forall (OpOk 10) := List.forall_append.mpr ⟨stepOps283_ok, opsFrom284_ok⟩
theorem after_opsFrom283 (V : Valuation τ sig (Elt F)) : after (opsFrom283 : List (HloOp τ sig (Elt F))) V = after opsFrom284 (after stepOps283 V) := after_append _ _ V
abbrev opsFrom282 : List (HloOp τ sig (Elt F)) := stepOps282 ++ opsFrom283
theorem opsFrom282_ok : (opsFrom282 : List (HloOp τ sig (Elt F))).Forall (OpOk 10) := List.forall_append.mpr ⟨stepOps282_ok, opsFrom283_ok⟩
theorem after_opsFrom282 (V : Valuation τ sig (Elt F)) : after (opsFrom282 : List (HloOp τ sig (Elt F))) V = after opsFrom283 (after stepOps282 V) := after_append _ _ V
abbrev opsFrom281 : List (HloOp τ sig (Elt F)) := stepOps281 ++ opsFrom282
theorem opsFrom281_ok : (opsFrom281 : List (HloOp τ sig (Elt F))).Forall (OpOk 10) := List.forall_append.mpr ⟨stepOps281_ok, opsFrom282_ok⟩
theorem after_opsFrom281 (V : Valuation τ sig (Elt F)) : after (opsFrom281 : List (HloOp τ sig (Elt F))) V = after opsFrom282 (after stepOps281 V) := after_append _ _ V
abbrev opsFrom280 : List (HloOp τ sig (Elt F)) := stepOps280 ++ opsFrom281
theorem opsFrom280_ok : (opsFrom280 : List (HloOp τ sig (Elt F))).Forall (OpOk 10) := List.forall_append.mpr ⟨stepOps280_ok, opsFrom281_ok⟩
theorem after_opsFrom280 (V : Valuation τ sig (Elt F)) : after (opsFrom280 : List (HloOp τ sig (Elt F))) V = after opsFrom281 (after stepOps280 V) := after_append _ _ V
abbrev opsFrom279 : List (HloOp τ sig (Elt F)) := stepOps279 ++ opsFrom280
theorem opsFrom279_ok : (opsFrom279 : List (HloOp τ sig (Elt F))).Forall (OpOk 10) := List.forall_append.mpr ⟨stepOps279_ok, opsFrom280_ok⟩
theorem after_opsFrom279 (V : Valuation τ sig (Elt F)) : after (opsFrom279 : List (HloOp τ sig (Elt F))) V = after opsFrom280 (after stepOps279 V) := after_append _ _ V
abbrev opsFrom278 : List (HloOp τ sig (Elt F)) := stepOps278 ++ opsFrom279
theorem opsFrom278_ok : (opsFrom278 : List (HloOp τ sig (Elt F))).Forall (OpOk 10) := List.forall_append.mpr ⟨stepOps278_ok, opsFrom279_ok⟩
theorem after_opsFrom278 (V : Valuation τ sig (Elt F)) : after (opsFrom278 : List (HloOp τ sig (Elt F))) V = after opsFrom279 (after stepOps278 V) := after_append _ _ V
abbrev opsFrom277 : List (HloOp τ sig (Elt F)) := stepOps277 ++ opsFrom278
theorem opsFrom277_ok : (opsFrom277 : List (HloOp τ sig (Elt F))).Forall (OpOk 10) := List.forall_append.mpr ⟨stepOps277_ok, opsFrom278_ok⟩
theorem after_opsFrom277 (V : Valuation τ sig (Elt F)) : after (opsFrom277 : List (HloOp τ sig (Elt F))) V = after opsFrom278 (after stepOps277 V) := after_append _ _ V
abbrev opsFrom276 : List (HloOp τ sig (Elt F)) := stepOps276 ++ opsFrom277
theorem opsFrom276_ok : (opsFrom276 : List (HloOp τ sig (Elt F))).Forall (OpOk 10) := List.forall_append.mpr ⟨stepOps276_ok, opsFrom277_ok⟩
theorem after_opsFrom276 (V : Valuation τ sig (Elt F)) : after (opsFrom276 : List (HloOp τ sig (Elt F))) V = after opsFrom277 (after stepOps276 V) := after_append _ _ V
abbrev opsFrom275 : List (HloOp τ sig (Elt F)) := stepOps275 ++ opsFrom276
theorem opsFrom275_ok : (opsFrom275 : List (HloOp τ sig (Elt F))).Forall (OpOk 10) := List.forall_append.mpr ⟨stepOps275_ok, opsFrom276_ok⟩
theorem after_opsFrom275 (V : Valuation τ sig (Elt F)) : after (opsFrom275 : List (HloOp τ sig (Elt F))) V = after opsFrom276 (after stepOps275 V) := after_append _ _ V
abbrev opsFrom274 : List (HloOp τ sig (Elt F)) := stepOps274 ++ opsFrom275
theorem opsFrom274_ok : (opsFrom274 : List (HloOp τ sig (Elt F))).Forall (OpOk 10) := List.forall_append.mpr ⟨stepOps274_ok, opsFrom275_ok⟩
theorem after_opsFrom274 (V : Valuation τ sig (Elt F)) : after (opsFrom274 : List (HloOp τ sig (Elt F))) V = after opsFrom275 (after stepOps274 V) := after_append _ _ V
abbrev opsFrom273 : List (HloOp τ sig (Elt F)) := stepOps273 ++ opsFrom274
theorem opsFrom273_ok : (opsFrom273 : List (HloOp τ sig (Elt F))).Forall (OpOk 10) := List.forall_append.mpr ⟨stepOps273_ok, opsFrom274_ok⟩
theorem after_opsFrom273 (V : Valuation τ sig (Elt F)) : after (opsFrom273 : List (HloOp τ sig (Elt F))) V = after opsFrom274 (after stepOps273 V) := after_append _ _ V
abbrev opsFrom272 : List (HloOp τ sig (Elt F)) := stepOps272 ++ opsFrom273
theorem opsFrom272_ok : (opsFrom272 : List (HloOp τ sig (Elt F))).Forall (OpOk 10) := List.forall_append.mpr ⟨stepOps272_ok, opsFrom273_ok⟩
theorem after_opsFrom272 (V : Valuation τ sig (Elt F)) : after (opsFrom272 : List (HloOp τ sig (Elt F))) V = after opsFrom273 (after stepOps272 V) := after_append _ _ V
abbrev opsFrom271 : List (HloOp τ sig (Elt F)) := stepOps271 ++ opsFrom272
theorem opsFrom271_ok : (opsFrom271 : List (HloOp τ sig (Elt F))).Forall (OpOk 10) := List.forall_append.mpr ⟨stepOps271_ok, opsFrom272_ok⟩
theorem after_opsFrom271 (V : Valuation τ sig (Elt F)) : after (opsFrom271 : List (HloOp τ sig (Elt F))) V = after opsFrom272 (after stepOps271 V) := after_append _ _ V
abbrev opsFrom270 : List (HloOp τ sig (Elt F)) := stepOps270 ++ opsFrom271
theorem opsFrom270_ok : (opsFrom270 : List (HloOp τ sig (Elt F))).Forall (OpOk 10) := List.forall_append.mpr ⟨stepOps270_ok, opsFrom271_ok⟩
theorem after_opsFrom270 (V : Valuation τ sig (Elt F)) : after (opsFrom270 : List (HloOp τ sig (Elt F))) V = after opsFrom271 (after stepOps270 V) := after_append _ _ V
abbrev opsFrom269 : List (HloOp τ sig (Elt F)) := stepOps269 ++ opsFrom270
theorem opsFrom269_ok : (opsFrom269 : List (HloOp τ sig (Elt F))).Forall (OpOk 10) := List.forall_append.mpr ⟨stepOps269_ok, opsFrom270_ok⟩
theorem after_opsFrom269 (V : Valuation τ sig (Elt F)) : after (opsFrom269 : List (HloOp τ sig (Elt F))) V = after opsFrom270 (after stepOps269 V) := after_append _ _ V
abbrev opsFrom268 : List (HloOp τ sig (Elt F)) := stepOps268 ++ opsFrom269
theorem opsFrom268_ok : (opsFrom268 : List (HloOp τ sig (Elt F))).Forall (OpOk 10) := List.forall_append.mpr ⟨stepOps268_ok, opsFrom269_ok⟩
theorem after_opsFrom268 (V : Valuation τ sig (Elt F)) : after (opsFrom268 : List (HloOp τ sig (Elt F))) V = after opsFrom269 (after stepOps268 V) := after_append _ _ V
abbrev opsFrom267 : List (HloOp τ sig (Elt F)) := stepOps267 ++ opsFrom268
theorem opsFrom267_ok : (opsFrom267 : List (HloOp τ sig (Elt F))).Forall (OpOk 10) := List.forall_append.mpr ⟨stepOps267_ok, opsFrom268_ok⟩
theorem after_opsFrom267 (V : Valuation τ sig (Elt F)) : after (opsFrom267 : List (HloOp τ sig (Elt F))) V = after opsFrom268 (after stepOps267 V) := after_append _ _ V
abbrev opsFrom266 : List (HloOp τ sig (Elt F)) := stepOps266 ++ opsFrom267
theorem opsFrom266_ok : (opsFrom266 : List (HloOp τ sig (Elt F))).Forall (OpOk 10) := List.forall_append.mpr ⟨stepOps266_ok, opsFrom267_ok⟩
theorem after_opsFrom266 (V : Valuation τ sig (Elt F)) : after (opsFrom266 : List (HloOp τ sig (Elt F))) V = after opsFrom267 (after stepOps266 V) := after_append _ _ V
abbrev opsFrom265 : List (HloOp τ sig (Elt F)) := stepOps265 ++ opsFrom266
theorem opsFrom265_ok : (opsFrom265 : List (HloOp τ sig (Elt F))).Forall (OpOk 10) := List.forall_append.mpr ⟨stepOps265_ok, opsFrom266_ok⟩
theorem after_opsFrom265 (V : Valuation τ sig (Elt F)) : after (opsFrom265 : List (HloOp τ sig (Elt F))) V = after opsFrom266 (after stepOps265 V) := after_append _ _ V
abbrev opsFrom264 : List (HloOp τ sig (Elt F)) := stepOps264 ++ opsFrom265
theorem opsFrom264_ok : (opsFrom264 : List (HloOp τ sig (Elt F))).Forall (OpOk 10) := List.forall_append.mpr ⟨stepOps264_ok, opsFrom265_ok⟩
theorem after_opsFrom264 (V : Valuation τ sig (Elt F)) : after (opsFrom264 : List (HloOp τ sig (Elt F))) V = after opsFrom265 (after stepOps264 V) := after_append _ _ V
abbrev opsFrom263 : List (HloOp τ sig (Elt F)) := stepOps263 ++ opsFrom264
theorem opsFrom263_ok : (opsFrom263 : List (HloOp τ sig (Elt F))).Forall (OpOk 10) := List.forall_append.mpr ⟨stepOps263_ok, opsFrom264_ok⟩
theorem after_opsFrom263 (V : Valuation τ sig (Elt F)) : after (opsFrom263 : List (HloOp τ sig (Elt F))) V = after opsFrom264 (after stepOps263 V) := after_append _ _ V
abbrev opsFrom262 : List (HloOp τ sig (Elt F)) := stepOps262 ++ opsFrom263
theorem opsFrom262_ok : (opsFrom262 : List (HloOp τ sig (Elt F))).Forall (OpOk 10) := List.forall_append.mpr ⟨stepOps262_ok, opsFrom263_ok⟩
theorem after_opsFrom262 (V : Valuation τ sig (Elt F)) : after (opsFrom262 : List (HloOp τ sig (Elt F))) V = after opsFrom263 (after stepOps262 V) := after_append _ _ V
abbrev opsFrom261 : List (HloOp τ sig (Elt F)) := stepOps261 ++ opsFrom262
theorem opsFrom261_ok : (opsFrom261 : List (HloOp τ sig (Elt F))).Forall (OpOk 10) := List.forall_append.mpr ⟨stepOps261_ok, opsFrom262_ok⟩
theorem after_opsFrom261 (V : Valuation τ sig (Elt F)) : after (opsFrom261 : List (HloOp τ sig (Elt F))) V = after opsFrom262 (after stepOps261 V) := after_append _ _ V
abbrev opsFrom260 : List (HloOp τ sig (Elt F)) := stepOps260 ++ opsFrom261
theorem opsFrom260_ok : (opsFrom260 : List (HloOp τ sig (Elt F))).Forall (OpOk 10) := List.forall_append.mpr ⟨stepOps260_ok, opsFrom261_ok⟩
theorem after_opsFrom260 (V : Valuation τ sig (Elt F)) : after (opsFrom260 : List (HloOp τ sig (Elt F))) V = after opsFrom261 (after stepOps260 V) := after_append _ _ V
abbrev opsFrom259 : List (HloOp τ sig (Elt F)) := stepOps259 ++ opsFrom260
theorem opsFrom259_ok : (opsFrom259 : List (HloOp τ sig (Elt F))).Forall (OpOk 10) := List.forall_append.mpr ⟨stepOps259_ok, opsFrom260_ok⟩
theorem after_opsFrom259 (V : Valuation τ sig (Elt F)) : after (opsFrom259 : List (HloOp τ sig (Elt F))) V = after opsFrom260 (after stepOps259 V) := after_append _ _ V
abbrev opsFrom258 : List (HloOp τ sig (Elt F)) := stepOps258 ++ opsFrom259
theorem opsFrom258_ok : (opsFrom258 : List (HloOp τ sig (Elt F))).Forall (OpOk 10) := List.forall_append.mpr ⟨stepOps258_ok, opsFrom259_ok⟩
theorem after_opsFrom258 (V : Valuation τ sig (Elt F)) : after (opsFrom258 : List (HloOp τ sig (Elt F))) V = after opsFrom259 (after stepOps258 V) := after_append _ _ V
abbrev opsFrom257 : List (HloOp τ sig (Elt F)) := stepOps257 ++ opsFrom258
theorem opsFrom257_ok : (opsFrom257 : List (HloOp τ sig (Elt F))).Forall (OpOk 10) := List.forall_append.mpr ⟨stepOps257_ok, opsFrom258_ok⟩
theorem after_opsFrom257 (V : Valuation τ sig (Elt F)) : after (opsFrom257 : List (HloOp τ sig (Elt F))) V = after opsFrom258 (after stepOps257 V) := after_append _ _ V
abbrev opsFrom256 : List (HloOp τ sig (Elt F)) := stepOps256 ++ opsFrom257
theorem opsFrom256_ok : (opsFrom256 : List (HloOp τ sig (Elt F))).Forall (OpOk 10) := List.forall_append.mpr ⟨stepOps256_ok, opsFrom257_ok⟩
theorem after_opsFrom256 (V : Valuation τ sig (Elt F)) : after (opsFrom256 : List (HloOp τ sig (Elt F))) V = after opsFrom257 (after stepOps256 V) := after_append _ _ V
abbrev opsFrom255 : List (HloOp τ sig (Elt F)) := stepOps255 ++ opsFrom256
theorem opsFrom255_ok : (opsFrom255 : List (HloOp τ sig (Elt F))).Forall (OpOk 10) := List.forall_append.mpr ⟨stepOps255_ok, opsFrom256_ok⟩
theorem after_opsFrom255 (V : Valuation τ sig (Elt F)) : after (opsFrom255 : List (HloOp τ sig (Elt F))) V = after opsFrom256 (after stepOps255 V) := after_append _ _ V
abbrev opsFrom254 : List (HloOp τ sig (Elt F)) := stepOps254 ++ opsFrom255
theorem opsFrom254_ok : (opsFrom254 : List (HloOp τ sig (Elt F))).Forall (OpOk 10) := List.forall_append.mpr ⟨stepOps254_ok, opsFrom255_ok⟩
theorem after_opsFrom254 (V : Valuation τ sig (Elt F)) : after (opsFrom254 : List (HloOp τ sig (Elt F))) V = after opsFrom255 (after stepOps254 V) := after_append _ _ V
abbrev opsFrom253 : List (HloOp τ sig (Elt F)) := stepOps253 ++ opsFrom254
theorem opsFrom253_ok : (opsFrom253 : List (HloOp τ sig (Elt F))).Forall (OpOk 10) := List.forall_append.mpr ⟨stepOps253_ok, opsFrom254_ok⟩
theorem after_opsFrom253 (V : Valuation τ sig (Elt F)) : after (opsFrom253 : List (HloOp τ sig (Elt F))) V = after opsFrom254 (after stepOps253 V) := after_append _ _ V
abbrev opsFrom252 : List (HloOp τ sig (Elt F)) := stepOps252 ++ opsFrom253
theorem opsFrom252_ok : (opsFrom252 : List (HloOp τ sig (Elt F))).Forall (OpOk 10) := List.forall_append.mpr ⟨stepOps252_ok, opsFrom253_ok⟩
theorem after_opsFrom252 (V : Valuation τ sig (Elt F)) : after (opsFrom252 : List (HloOp τ sig (Elt F))) V = after opsFrom253 (after stepOps252 V) := after_append _ _ V
abbrev opsFrom251 : List (HloOp τ sig (Elt F)) := stepOps251 ++ opsFrom252
theorem opsFrom251_ok : (opsFrom251 : List (HloOp τ sig (Elt F))).Forall (OpOk 10) := List.forall_append.mpr ⟨stepOps251_ok, opsFrom252_ok⟩
theorem after_opsFrom251 (V : Valuation τ sig (Elt F)) : after (opsFrom251 : List (HloOp τ sig (Elt F))) V = after opsFrom252 (after stepOps251 V) := after_append _ _ V
abbrev opsFrom250 : List (HloOp τ sig (Elt F)) := stepOps250 ++ opsFrom251
theorem opsFrom250_ok : (opsFrom250 : List (HloOp τ sig (Elt F))).Forall (OpOk 10) := List.forall_append.mpr ⟨stepOps250_ok, opsFrom251_ok⟩
theorem after_opsFrom250 (V : Valuation τ sig (Elt F)) : after (opsFrom250 : List (HloOp τ sig (Elt F))) V = after opsFrom251 (after stepOps250 V) := after_append _ _ V
abbrev opsFrom249 : List (HloOp τ sig (Elt F)) := stepOps249 ++ opsFrom250
theorem opsFrom249_ok : (opsFrom249 : List (HloOp τ sig (Elt F))).Forall (OpOk 10) := List.forall_append.mpr ⟨stepOps249_ok, opsFrom250_ok⟩
theorem after_opsFrom249 (V : Valuation τ sig (Elt F)) : after (opsFrom249 : List (HloOp τ sig (Elt F))) V = after opsFrom250 (after stepOps249 V) := after_append _ _ V
abbrev opsFrom248 : List (HloOp τ sig (Elt F)) := stepOps248 ++ opsFrom249
theorem opsFrom248_ok : (opsFrom248 : List (HloOp τ sig (Elt F))).Forall (OpOk 10) := List.forall_append.mpr ⟨stepOps248_ok, opsFrom249_ok⟩
theorem after_opsFrom248 (V : Valuation τ sig (Elt F)) : after (opsFrom248 : List (HloOp τ sig (Elt F))) V = after opsFrom249 (after stepOps248 V) := after_append _ _ V
abbrev opsFrom247 : List (HloOp τ sig (Elt F)) := stepOps247 ++ opsFrom248
theorem opsFrom247_ok : (opsFrom247 : List (HloOp τ sig (Elt F))).Forall (OpOk 10) := List.forall_append.mpr ⟨stepOps247_ok, opsFrom248_ok⟩
theorem after_opsFrom247 (V : Valuation τ sig (Elt F)) : after (opsFrom247 : List (HloOp τ sig (Elt F))) V = after opsFrom248 (after stepOps247 V) := after_append _ _ V
abbrev opsFrom246 : List (HloOp τ sig (Elt F)) := stepOps246 ++ opsFrom247
theorem opsFrom246_ok : (opsFrom246 : List (HloOp τ sig (Elt F))).Forall (OpOk 10) := List.forall_append.mpr ⟨stepOps246_ok, opsFrom247_ok⟩
theorem after_opsFrom246 (V : Valuation τ sig (Elt F)) : after (opsFrom246 : List (HloOp τ sig (Elt F))) V = after opsFrom247 (after stepOps246 V) := after_append _ _ V
abbrev opsFrom245 : List (HloOp τ sig (Elt F)) := stepOps245 ++ opsFrom246
theorem opsFrom245_ok : (opsFrom245 : List (HloOp τ sig (Elt F))).Forall (OpOk 10) := List.forall_append.mpr ⟨stepOps245_ok, opsFrom246_ok⟩
theorem after_opsFrom245 (V : Valuation τ sig (Elt F)) : after (opsFrom245 : List (HloOp τ sig (Elt F))) V = after opsFrom246 (after stepOps245 V) := after_append _ _ V
abbrev opsFrom244 : List (HloOp τ sig (Elt F)) := stepOps244 ++ opsFrom245
theorem opsFrom244_ok : (opsFrom244 : List (HloOp τ sig (Elt F))).Forall (OpOk 10) := List.forall_append.mpr ⟨stepOps244_ok, opsFrom245_ok⟩
theorem after_opsFrom244 (V : Valuation τ sig (Elt F)) : after (opsFrom244 : List (HloOp τ sig (Elt F))) V = after opsFrom245 (after stepOps244 V) := after_append _ _ V
abbrev opsFrom243 : List (HloOp τ sig (Elt F)) := stepOps243 ++ opsFrom244
theorem opsFrom243_ok : (opsFrom243 : List (HloOp τ sig (Elt F))).Forall (OpOk 10) := List.forall_append.mpr ⟨stepOps243_ok, opsFrom244_ok⟩
theorem after_opsFrom243 (V : Valuation τ sig (Elt F)) : after (opsFrom243 : List (HloOp τ sig (Elt F))) V = after opsFrom244 (after stepOps243 V) := after_append _ _ V
abbrev opsFrom242 : List (HloOp τ sig (Elt F)) := stepOps242 ++ opsFrom243
theorem opsFrom242_ok : (opsFrom242 : List (HloOp τ sig (Elt F))).Forall (OpOk 10) := List.forall_append.mpr ⟨stepOps242_ok, opsFrom243_ok⟩
theorem after_opsFrom242 (V : Valuation τ sig (Elt F)) : after (opsFrom242 : List (HloOp τ sig (Elt F))) V = after opsFrom243 (after stepOps242 V) := after_append _ _ V
abbrev opsFrom241 : List (HloOp τ sig (Elt F)) := stepOps241 ++ opsFrom242
theorem opsFrom241_ok : (opsFrom241 : List (HloOp τ sig (Elt F))).Forall (OpOk 10) := List.forall_append.mpr ⟨stepOps241_ok, opsFrom242_ok⟩
theorem after_opsFrom241 (V : Valuation τ sig (Elt F)) : after (opsFrom241 : List (HloOp τ sig (Elt F))) V = after opsFrom242 (after stepOps241 V) := after_append _ _ V
abbrev opsFrom240 : List (HloOp τ sig (Elt F)) := stepOps240 ++ opsFrom241
theorem opsFrom240_ok : (opsFrom240 : List (HloOp τ sig (Elt F))).Forall (OpOk 10) := List.forall_append.mpr ⟨stepOps240_ok, opsFrom241_ok⟩
theorem after_opsFrom240 (V : Valuation τ sig (Elt F)) : after (opsFrom240 : List (HloOp τ sig (Elt F))) V = after opsFrom241 (after stepOps240 V) := after_append _ _ V
abbrev opsFrom239 : List (HloOp τ sig (Elt F)) := stepOps239 ++ opsFrom240
theorem opsFrom239_ok : (opsFrom239 : List (HloOp τ sig (Elt F))).Forall (OpOk 10) := List.forall_append.mpr ⟨stepOps239_ok, opsFrom240_ok⟩
theorem after_opsFrom239 (V : Valuation τ sig (Elt F)) : after (opsFrom239 : List (HloOp τ sig (Elt F))) V = after opsFrom240 (after stepOps239 V) := after_append _ _ V
abbrev opsFrom238 : List (HloOp τ sig (Elt F)) := stepOps238 ++ opsFrom239
theorem opsFrom238_ok : (opsFrom238 : List (HloOp τ sig (Elt F))).Forall (OpOk 10) := List.forall_append.mpr ⟨stepOps238_ok, opsFrom239_ok⟩
theorem after_opsFrom238 (V : Valuation τ sig (Elt F)) : after (opsFrom238 : List (HloOp τ sig (Elt F))) V = after opsFrom239 (after stepOps238 V) := after_append _ _ V
abbrev opsFrom237 : List (HloOp τ sig (Elt F)) := stepOps237 ++ opsFrom238
theorem opsFrom237_ok : (opsFrom237 : List (HloOp τ sig (Elt F))).Forall (OpOk 10) := List.forall_append.mpr ⟨stepOps237_ok, opsFrom238_ok⟩
theorem after_opsFrom237 (V : Valuation τ sig (Elt F)) : after (opsFrom237 : List (HloOp τ sig (Elt F))) V = after opsFrom238 (after stepOps237 V) := after_append _ _ V
abbrev opsFrom236 : List (HloOp τ sig (Elt F)) := stepOps236 ++ opsFrom237
theorem opsFrom236_ok : (opsFrom236 : List (HloOp τ sig (Elt F))).Forall (OpOk 10) := List.forall_append.mpr ⟨stepOps236_ok, opsFrom237_ok⟩
theorem after_opsFrom236 (V : Valuation τ sig (Elt F)) : after (opsFrom236 : List (HloOp τ sig (Elt F))) V = after opsFrom237 (after stepOps236 V) := after_append _ _ V
abbrev opsFrom235 : List (HloOp τ sig (Elt F)) := stepOps235 ++ opsFrom236
theorem opsFrom235_ok : (opsFrom235 : List (HloOp τ sig (Elt F))).Forall (OpOk 10) := List.forall_append.mpr ⟨stepOps235_ok, opsFrom236_ok⟩
theorem after_opsFrom235 (V : Valuation τ sig (Elt F)) : after (opsFrom235 : List (HloOp τ sig (Elt F))) V = after opsFrom236 (after stepOps235 V) := after_append _ _ V
abbrev opsFrom234 : List (HloOp τ sig (Elt F)) := stepOps234 ++ opsFrom235
theorem opsFrom234_ok : (opsFrom234 : List (HloOp τ sig (Elt F))).Forall (OpOk 10) := List.forall_append.mpr ⟨stepOps234_ok, opsFrom235_ok⟩
theorem after_opsFrom234 (V : Valuation τ sig (Elt F)) : after (opsFrom234 : List (HloOp τ sig (Elt F))) V = after opsFrom235 (after stepOps234 V) := after_append _ _ V
abbrev opsFrom233 : List (HloOp τ sig (Elt F)) := stepOps233 ++ opsFrom234
theorem opsFrom233_ok : (opsFrom233 : List (HloOp τ sig (Elt F))).Forall (OpOk 10) := List.forall_append.mpr ⟨stepOps233_ok, opsFrom234_ok⟩
theorem after_opsFrom233 (V : Valuation τ sig (Elt F)) : after (opsFrom233 : List (HloOp τ sig (Elt F))) V = after opsFrom234 (after stepOps233 V) := after_append _ _ V
abbrev opsFrom232 : List (HloOp τ sig (Elt F)) := stepOps232 ++ opsFrom233
theorem opsFrom232_ok : (opsFrom232 : List (HloOp τ sig (Elt F))).Forall (OpOk 10) := List.forall_append.mpr ⟨stepOps232_ok, opsFrom233_ok⟩
theorem after_opsFrom232 (V : Valuation τ sig (Elt F)) : after (opsFrom232 : List (HloOp τ sig (Elt F))) V = after opsFrom233 (after stepOps232 V) := after_append _ _ V
abbrev opsFrom231 : List (HloOp τ sig (Elt F)) := stepOps231 ++ opsFrom232
theorem opsFrom231_ok : (opsFrom231 : List (HloOp τ sig (Elt F))).Forall (OpOk 10) := List.forall_append.mpr ⟨stepOps231_ok, opsFrom232_ok⟩
theorem after_opsFrom231 (V : Valuation τ sig (Elt F)) : after (opsFrom231 : List (HloOp τ sig (Elt F))) V = after opsFrom232 (after stepOps231 V) := after_append _ _ V
abbrev opsFrom230 : List (HloOp τ sig (Elt F)) := stepOps230 ++ opsFrom231
theorem opsFrom230_ok : (opsFrom230 : List (HloOp τ sig (Elt F))).Forall (OpOk 10) := List.forall_append.mpr ⟨stepOps230_ok, opsFrom231_ok⟩
theorem after_opsFrom230 (V : Valuation τ sig (Elt F)) : after (opsFrom230 : List (HloOp τ sig (Elt F))) V = after opsFrom231 (after stepOps230 V) := after_append _ _ V
abbrev opsFrom229 : List (HloOp τ sig (Elt F)) := stepOps229 ++ opsFrom230
theorem opsFrom229_ok : (opsFrom229 : List (HloOp τ sig (Elt F))).Forall (OpOk 10) := List.forall_append.mpr ⟨stepOps229_ok, opsFrom230_ok⟩
theorem after_opsFrom229 (V : Valuation τ sig (Elt F)) : after (opsFrom229 : List (HloOp τ sig (Elt F))) V = after opsFrom230 (after stepOps229 V) := after_append _ _ V
abbrev opsFrom228 : List (HloOp τ sig (Elt F)) := stepOps228 ++ opsFrom229
theorem opsFrom228_ok : (opsFrom228 : List (HloOp τ sig (Elt F))).Forall (OpOk 10) := List.forall_append.mpr ⟨stepOps228_ok, opsFrom229_ok⟩
theorem after_opsFrom228 (V : Valuation τ sig (Elt F)) : after (opsFrom228 : List (HloOp τ sig (Elt F))) V = after opsFrom229 (after stepOps228 V) := after_append _ _ V
abbrev opsFrom227 : List (HloOp τ sig (Elt F)) := stepOps227 ++ opsFrom228
theorem opsFrom227_ok : (opsFrom227 : List (HloOp τ sig (Elt F))).Forall (OpOk 10) := List.forall_append.mpr ⟨stepOps227_ok, opsFrom228_ok⟩
theorem after_opsFrom227 (V : Valuation τ sig (Elt F)) : after (opsFrom227 : List (HloOp τ sig (Elt F))) V = after opsFrom228 (after stepOps227 V) := after_append _ _ V
abbrev opsFrom226 : List (HloOp τ sig (Elt F)) := stepOps226 ++ opsFrom227
theorem opsFrom226_ok : (opsFrom226 : List (HloOp τ sig (Elt F))).Forall (OpOk 10) := List.forall_append.mpr ⟨stepOps226_ok, opsFrom227_ok⟩
theorem after_opsFrom226 (V : Valuation τ sig (Elt F)) : after (opsFrom226 : List (HloOp τ sig (Elt F))) V = after opsFrom227 (after stepOps226 V) := after_append _ _ V
abbrev opsFrom225 : List (HloOp τ sig (Elt F)) := stepOps225 ++ opsFrom226
theorem opsFrom225_ok : (opsFrom225 : List (HloOp τ sig (Elt F))).Forall (OpOk 10) := List.forall_append.mpr ⟨stepOps225_ok, opsFrom226_ok⟩
theorem after_opsFrom225 (V : Valuation τ sig (Elt F)) : after (opsFrom225 : List (HloOp τ sig (Elt F))) V = after opsFrom226 (after stepOps225 V) := after_append _ _ V
abbrev opsFrom224 : List (HloOp τ sig (Elt F)) := stepOps224 ++ opsFrom225
theorem opsFrom224_ok : (opsFrom224 : List (HloOp τ sig (Elt F))).Forall (OpOk 10) := List.forall_append.mpr ⟨stepOps224_ok, opsFrom225_ok⟩
theorem after_opsFrom224 (V : Valuation τ sig (Elt F)) : after (opsFrom224 : List (HloOp τ sig (Elt F))) V = after opsFrom225 (after stepOps224 V) := after_append _ _ V
abbrev opsFrom223 : List (HloOp τ sig (Elt F)) := stepOps223 ++ opsFrom224
theorem opsFrom223_ok : (opsFrom223 : List (HloOp τ sig (Elt F))).Forall (OpOk 10) := List.forall_append.mpr ⟨stepOps223_ok, opsFrom224_ok⟩
theorem after_opsFrom223 (V : Valuation τ sig (Elt F)) : after (opsFrom223 : List (HloOp τ sig (Elt F))) V = after opsFrom224 (after stepOps223 V) := after_append _ _ V
abbrev opsFrom222 : List (HloOp τ sig (Elt F)) := stepOps222 ++ opsFrom223
theorem opsFrom222_ok : (opsFrom222 : List (HloOp τ sig (Elt F))).Forall (OpOk 10) := List.forall_append.mpr ⟨stepOps222_ok, opsFrom223_ok⟩
theorem after_opsFrom222 (V : Valuation τ sig (Elt F)) : after (opsFrom222 : List (HloOp τ sig (Elt F))) V = after opsFrom223 (after stepOps222 V) := after_append _ _ V
abbrev opsFrom221 : List (HloOp τ sig (Elt F)) := stepOps221 ++ opsFrom222
theorem opsFrom221_ok : (opsFrom221 : List (HloOp τ sig (Elt F))).Forall (OpOk 10) := List.forall_append.mpr ⟨stepOps221_ok, opsFrom222_ok⟩
theorem after_opsFrom221 (V : Valuation τ sig (Elt F)) : after (opsFrom221 : List (HloOp τ sig (Elt F))) V = after opsFrom222 (after stepOps221 V) := after_append _ _ V
abbrev opsFrom220 : List (HloOp τ sig (Elt F)) := stepOps220 ++ opsFrom221
theorem opsFrom220_ok : (opsFrom220 : List (HloOp τ sig (Elt F))).Forall (OpOk 10) := List.forall_append.mpr ⟨stepOps220_ok, opsFrom221_ok⟩
theorem after_opsFrom220 (V : Valuation τ sig (Elt F)) : after (opsFrom220 : List (HloOp τ sig (Elt F))) V = after opsFrom221 (after stepOps220 V) := after_append _ _ V
abbrev opsFrom219 : List (HloOp τ sig (Elt F)) := stepOps219 ++ opsFrom220
theorem opsFrom219_ok : (opsFrom219 : List (HloOp τ sig (Elt F))).Forall (OpOk 10) := List.forall_append.mpr ⟨stepOps219_ok, opsFrom220_ok⟩
theorem after_opsFrom219 (V : Valuation τ sig (Elt F)) : after (opsFrom219 : List (HloOp τ sig (Elt F))) V = after opsFrom220 (after stepOps219 V) := after_append _ _ V
abbrev opsFrom218 : List (HloOp τ sig (Elt F)) := stepOps218 ++ opsFrom219
theorem opsFrom218_ok : (opsFrom218 : List (HloOp τ sig (Elt F))).Forall (OpOk 10) := List.forall_append.mpr ⟨stepOps218_ok, opsFrom219_ok⟩
theorem after_opsFrom218 (V : Valuation τ sig (Elt F)) : after (opsFrom218 : List (HloOp τ sig (Elt F))) V = after opsFrom219 (after stepOps218 V) := after_append _ _ V
abbrev opsFrom217 : List (HloOp τ sig (Elt F)) := stepOps217 ++ opsFrom218
theorem opsFrom217_ok : (opsFrom217 : List (HloOp τ sig (Elt F))).Forall (OpOk 10) := List.forall_append.mpr ⟨stepOps217_ok, opsFrom218_ok⟩
theorem after_opsFrom217 (V : Valuation τ sig (Elt F)) : after (opsFrom217 : List (HloOp τ sig (Elt F))) V = after opsFrom218 (after stepOps217 V) := after_append _ _ V
abbrev opsFrom216 : List (HloOp τ sig (Elt F)) := stepOps216 ++ opsFrom217
theorem opsFrom216_ok : (opsFrom216 : List (HloOp τ sig (Elt F))).Forall (OpOk 10) := List.forall_append.mpr ⟨stepOps216_ok, opsFrom217_ok⟩
theorem after_opsFrom216 (V : Valuation τ sig (Elt F)) : after (opsFrom216 : List (HloOp τ sig (Elt F))) V = after opsFrom217 (after stepOps216 V) := after_append _ _ V
abbrev opsFrom215 : List (HloOp τ sig (Elt F)) := stepOps215 ++ opsFrom216
theorem opsFrom215_ok : (opsFrom215 : List (HloOp τ sig (Elt F))).Forall (OpOk 10) := List.forall_append.mpr ⟨stepOps215_ok, opsFrom216_ok⟩
theorem after_opsFrom215 (V : Valuation τ sig (Elt F)) : after (opsFrom215 : List (HloOp τ sig (Elt F))) V = after opsFrom216 (after stepOps215 V) := after_append _ _ V
abbrev opsFrom214 : List (HloOp τ sig (Elt F)) := stepOps214 ++ opsFrom215
theorem opsFrom214_ok : (opsFrom214 : List (HloOp τ sig (Elt F))).Forall (OpOk 10) := List.forall_append.mpr ⟨stepOps214_ok, opsFrom215_ok⟩
theorem after_opsFrom214 (V : Valuation τ sig (Elt F)) : after (opsFrom214 : List (HloOp τ sig (Elt F))) V = after opsFrom215 (after stepOps214 V) := after_append _ _ V
abbrev opsFrom213 : List (HloOp τ sig (Elt F)) := stepOps213 ++ opsFrom214
theorem opsFrom213_ok : (opsFrom213 : List (HloOp τ sig (Elt F))).Forall (OpOk 10) := List.forall_append.mpr ⟨stepOps213_ok, opsFrom214_ok⟩
theorem after_opsFrom213 (V : Valuation τ sig (Elt F)) : after (opsFrom213 : List (HloOp τ sig (Elt F))) V = after opsFrom214 (after stepOps213 V) := after_append _ _ V
abbrev opsFrom212 : List (HloOp τ sig (Elt F)) := stepOps212 ++ opsFrom213
theorem opsFrom212_ok : (opsFrom212 : List (HloOp τ sig (Elt F))).Forall (OpOk 10) := List.forall_append.mpr ⟨stepOps212_ok, opsFrom213_ok⟩
theorem after_opsFrom212 (V : Valuation τ sig (Elt F)) : after (opsFrom212 : List (HloOp τ sig (Elt F))) V = after opsFrom213 (after stepOps212 V) := after_append _ _ V
abbrev opsFrom211 : List (HloOp τ sig (Elt F)) := stepOps211 ++ opsFrom212
theorem opsFrom211_ok : (opsFrom211 : List (HloOp τ sig (Elt F))).Forall (OpOk 10) := List.forall_append.mpr ⟨stepOps211_ok, opsFrom212_ok⟩
theorem after_opsFrom211 (V : Valuation τ sig (Elt F)) : after (opsFrom211 : List (HloOp τ sig (Elt F))) V = after opsFrom212 (after stepOps211 V) := after_append _ _ V
abbrev opsFrom210 : List (HloOp τ sig (Elt F)) := stepOps210 ++ opsFrom211
theorem opsFrom210_ok : (opsFrom210 : List (HloOp τ sig (Elt F))).Forall (OpOk 10) := List.forall_append.mpr ⟨stepOps210_ok, opsFrom211_ok⟩
theorem after_opsFrom210 (V : Valuation τ sig (Elt F)) : after (opsFrom210 : List (HloOp τ sig (Elt F))) V = after opsFrom211 (after stepOps210 V) := after_append _ _ V
abbrev opsFrom209 : List (HloOp τ sig (Elt F)) := stepOps209 ++ opsFrom210
theorem opsFrom209_ok : (opsFrom209 : List (HloOp τ sig (Elt F))).Forall (OpOk 10) := List.forall_append.mpr ⟨stepOps209_ok, opsFrom210_ok⟩
theorem after_opsFrom209 (V : Valuation τ sig (Elt F)) : after (opsFrom209 : List (HloOp τ sig (Elt F))) V = after opsFrom210 (after stepOps209 V) := after_append _ _ V
abbrev opsFrom208 : List (HloOp τ sig (Elt F)) := stepOps208 ++ opsFrom209
theorem opsFrom208_ok : (opsFrom208 : List (HloOp τ sig (Elt F))).Forall (OpOk 10) := List.forall_append.mpr ⟨stepOps208_ok, opsFrom209_ok⟩
theorem after_opsFrom208 (V : Valuation τ sig (Elt F)) : after (opsFrom208 : List (HloOp τ sig (Elt F))) V = after opsFrom209 (after stepOps208 V) := after_append _ _ V
abbrev opsFrom207 : List (HloOp τ sig (Elt F)) := stepOps207 ++ opsFrom208
theorem opsFrom207_ok : (opsFrom207 : List (HloOp τ sig (Elt F))).Forall (OpOk 10) := List.forall_append.mpr ⟨stepOps207_ok, opsFrom208_ok⟩
theorem after_opsFrom207 (V : Valuation τ sig (Elt F)) : after (opsFrom207 : List (HloOp τ sig (Elt F))) V = after opsFrom208 (after stepOps207 V) := after_append _ _ V
abbrev opsFrom206 : List (HloOp τ sig (Elt F)) := stepOps206 ++ opsFrom207
theorem opsFrom206_ok : (opsFrom206 : List (HloOp τ sig (Elt F))).Forall (OpOk 10) := List.forall_append.mpr ⟨stepOps206_ok, opsFrom207_ok⟩
theorem after_opsFrom206 (V : Valuation τ sig (Elt F)) : after (opsFrom206 : List (HloOp τ sig (Elt F))) V = after opsFrom207 (after stepOps206 V) := after_append _ _ V
abbrev opsFrom205 : List (HloOp τ sig (Elt F)) := stepOps205 ++ opsFrom206
theorem opsFrom205_ok : (opsFrom205 : List (HloOp τ sig (Elt F))).Forall (OpOk 10) := List.forall_append.mpr ⟨stepOps205_ok, opsFrom206_ok⟩
theorem after_opsFrom205 (V : Valuation τ sig (Elt F)) : after (opsFrom205 : List (HloOp τ sig (Elt F))) V = after opsFrom206 (after stepOps205 V) := after_append _ _ V
abbrev opsFrom204 : List (HloOp τ sig (Elt F)) := stepOps204 ++ opsFrom205
theorem opsFrom204_ok : (opsFrom204 : List (HloOp τ sig (Elt F))).Forall (OpOk 10) := List.forall_append.mpr ⟨stepOps204_ok, opsFrom205_ok⟩
theorem after_opsFrom204 (V : Valuation τ sig (Elt F)) : after (opsFrom204 : List (HloOp τ sig (Elt F))) V = after opsFrom205 (after stepOps204 V) := after_append _ _ V
abbrev opsFrom203 : List (HloOp τ sig (Elt F)) := stepOps203 ++ opsFrom204
theorem opsFrom203_ok : (opsFrom203 : List (HloOp τ sig (Elt F))).Forall (OpOk 10) := List.forall_append.mpr ⟨stepOps203_ok, opsFrom204_ok⟩
theorem after_opsFrom203 (V : Valuation τ sig (Elt F)) : after (opsFrom203 : List (HloOp τ sig (Elt F))) V = after opsFrom204 (after stepOps203 V) := after_append _ _ V
abbrev opsFrom202 : List (HloOp τ sig (Elt F)) := stepOps202 ++ opsFrom203
theorem opsFrom202_ok : (opsFrom202 : List (HloOp τ sig (Elt F))).Forall (OpOk 10) := List.forall_append.mpr ⟨stepOps202_ok, opsFrom203_ok⟩
theorem after_opsFrom202 (V : Valuation τ sig (Elt F)) : after (opsFrom202 : List (HloOp τ sig (Elt F))) V = after opsFrom203 (after stepOps202 V) := after_append _ _ V
abbrev opsFrom201 : List (HloOp τ sig (Elt F)) := stepOps201 ++ opsFrom202
theorem opsFrom201_ok : (opsFrom201 : List (HloOp τ sig (Elt F))).Forall (OpOk 10) := List.forall_append.mpr ⟨stepOps201_ok, opsFrom202_ok⟩
theorem after_opsFrom201 (V : Valuation τ sig (Elt F)) : after (opsFrom201 : List (HloOp τ sig (Elt F))) V = after opsFrom202 (after stepOps201 V) := after_append _ _ V
abbrev opsFrom200 : List (HloOp τ sig (Elt F)) := stepOps200 ++ opsFrom201
theorem opsFrom200_ok : (opsFrom200 : List (HloOp τ sig (Elt F))).Forall (OpOk 10) := List.forall_append.mpr ⟨stepOps200_ok, opsFrom201_ok⟩
theorem after_opsFrom200 (V : Valuation τ sig (Elt F)) : after (opsFrom200 : List (HloOp τ sig (Elt F))) V = after opsFrom201 (after stepOps200 V) := after_append _ _ V
abbrev opsFrom199 : List (HloOp τ sig (Elt F)) := stepOps199 ++ opsFrom200
theorem opsFrom199_ok : (opsFrom199 : List (HloOp τ sig (Elt F))).Forall (OpOk 10) := List.forall_append.mpr ⟨stepOps199_ok, opsFrom200_ok⟩
theorem after_opsFrom199 (V : Valuation τ sig (Elt F)) : after (opsFrom199 : List (HloOp τ sig (Elt F))) V = after opsFrom200 (after stepOps199 V) := after_append _ _ V
abbrev opsFrom198 : List (HloOp τ sig (Elt F)) := stepOps198 ++ opsFrom199
theorem opsFrom198_ok : (opsFrom198 : List (HloOp τ sig (Elt F))).Forall (OpOk 10) := List.forall_append.mpr ⟨stepOps198_ok, opsFrom199_ok⟩
theorem after_opsFrom198 (V : Valuation τ sig (Elt F)) : after (opsFrom198 : List (HloOp τ sig (Elt F))) V = after opsFrom199 (after stepOps198 V) := after_append _ _ V
abbrev opsFrom197 : List (HloOp τ sig (Elt F)) := stepOps197 ++ opsFrom198
theorem opsFrom197_ok : (opsFrom197 : List (HloOp τ sig (Elt F))).Forall (OpOk 10) := List.forall_append.mpr ⟨stepOps197_ok, opsFrom198_ok⟩
theorem after_opsFrom197 (V : Valuation τ sig (Elt F)) : after (opsFrom197 : List (HloOp τ sig (Elt F))) V = after opsFrom198 (after stepOps197 V) := after_append _ _ V
abbrev opsFrom196 : List (HloOp τ sig (Elt F)) := stepOps196 ++ opsFrom197
theorem opsFrom196_ok : (opsFrom196 : List (HloOp τ sig (Elt F))).Forall (OpOk 10) := List.forall_append.mpr ⟨stepOps196_ok, opsFrom197_ok⟩
theorem after_opsFrom196 (V : Valuation τ sig (Elt F)) : after (opsFrom196 : List (HloOp τ sig (Elt F))) V = after opsFrom197 (after stepOps196 V) := after_append _ _ V
abbrev opsFrom195 : List (HloOp τ sig (Elt F)) := stepOps195 ++ opsFrom196
theorem opsFrom195_ok : (opsFrom195 : List (HloOp τ sig (Elt F))).Forall (OpOk 10) := List.forall_append.mpr ⟨stepOps195_ok, opsFrom196_ok⟩
theorem after_opsFrom195 (V : Valuation τ sig (Elt F)) : after (opsFrom195 : List (HloOp τ sig (Elt F))) V = after opsFrom196 (after stepOps195 V) := after_append _ _ V
abbrev opsFrom194 : List (HloOp τ sig (Elt F)) := stepOps194 ++ opsFrom195
theorem opsFrom194_ok : (opsFrom194 : List (HloOp τ sig (Elt F))).Forall (OpOk 10) := List.forall_append.mpr ⟨stepOps194_ok, opsFrom195_ok⟩
theorem after_opsFrom194 (V : Valuation τ sig (Elt F)) : after (opsFrom194 : List (HloOp τ sig (Elt F))) V = after opsFrom195 (after stepOps194 V) := after_append _ _ V
abbrev opsFrom193 : List (HloOp τ sig (Elt F)) := stepOps193 ++ opsFrom194
theorem opsFrom193_ok : (opsFrom193 : List (HloOp τ sig (Elt F))).Forall (OpOk 10) := List.forall_append.mpr ⟨stepOps193_ok, opsFrom194_ok⟩
theorem after_opsFrom193 (V : Valuation τ sig (Elt F)) : after (opsFrom193 : List (HloOp τ sig (Elt F))) V = after opsFrom194 (after stepOps193 V) := after_append _ _ V
abbrev opsFrom192 : List (HloOp τ sig (Elt F)) := stepOps192 ++ opsFrom193
theorem opsFrom192_ok : (opsFrom192 : List (HloOp τ sig (Elt F))).Forall (OpOk 10) := List.forall_append.mpr ⟨stepOps192_ok, opsFrom193_ok⟩
theorem after_opsFrom192 (V : Valuation τ sig (Elt F)) : after (opsFrom192 : List (HloOp τ sig (Elt F))) V = after opsFrom193 (after stepOps192 V) := after_append _ _ V
abbrev opsFrom191 : List (HloOp τ sig (Elt F)) := stepOps191 ++ opsFrom192
theorem opsFrom191_ok : (opsFrom191 : List (HloOp τ sig (Elt F))).Forall (OpOk 10) := List.forall_append.mpr ⟨stepOps191_ok, opsFrom192_ok⟩
theorem after_opsFrom191 (V : Valuation τ sig (Elt F)) : after (opsFrom191 : List (HloOp τ sig (Elt F))) V = after opsFrom192 (after stepOps191 V) := after_append _ _ V
abbrev opsFrom190 : List (HloOp τ sig (Elt F)) := stepOps190 ++ opsFrom191
theorem opsFrom190_ok : (opsFrom190 : List (HloOp τ sig (Elt F))).Forall (OpOk 10) := List.forall_append.mpr ⟨stepOps190_ok, opsFrom191_ok⟩
theorem after_opsFrom190 (V : Valuation τ sig (Elt F)) : after (opsFrom190 : List (HloOp τ sig (Elt F))) V = after opsFrom191 (after stepOps190 V) := after_append _ _ V
abbrev opsFrom189 : List (HloOp τ sig (Elt F)) := stepOps189 ++ opsFrom190
theorem opsFrom189_ok : (opsFrom189 : List (HloOp τ sig (Elt F))).Forall (OpOk 10) := List.forall_append.mpr ⟨stepOps189_ok, opsFrom190_ok⟩
theorem after_opsFrom189 (V : Valuation τ sig (Elt F)) : after (opsFrom189 : List (HloOp τ sig (Elt F))) V = after opsFrom190 (after stepOps189 V) := after_append _ _ V
abbrev opsFrom188 : List (HloOp τ sig (Elt F)) := stepOps188 ++ opsFrom189
theorem opsFrom188_ok : (opsFrom188 : List (HloOp τ sig (Elt F))).Forall (OpOk 10) := List.forall_append.mpr ⟨stepOps188_ok, opsFrom189_ok⟩
theorem after_opsFrom188 (V : Valuation τ sig (Elt F)) : after (opsFrom188 : List (HloOp τ sig (Elt F))) V = after opsFrom189 (after stepOps188 V) := after_append _ _ V
abbrev opsFrom187 : List (HloOp τ sig (Elt F)) := stepOps187 ++ opsFrom188
theorem opsFrom187_ok : (opsFrom187 : List (HloOp τ sig (Elt F))).Forall (OpOk 10) := List.forall_append.mpr ⟨stepOps187_ok, opsFrom188_ok⟩
theorem after_opsFrom187 (V : Valuation τ sig (Elt F)) : after (opsFrom187 : List (HloOp τ sig (Elt F))) V = after opsFrom188 (after stepOps187 V) := after_append _ _ V
abbrev opsFrom186 : List (HloOp τ sig (Elt F)) := stepOps186 ++ opsFrom187
theorem opsFrom186_ok : (opsFrom186 : List (HloOp τ sig (Elt F))).Forall (OpOk 10) := List.forall_append.mpr ⟨stepOps186_ok, opsFrom187_ok⟩
theorem after_opsFrom186 (V : Valuation τ sig (Elt F)) : after (opsFrom186 : List (HloOp τ sig (Elt F))) V = after opsFrom187 (after stepOps186 V) := after_append _ _ V
abbrev opsFrom185 : List (HloOp τ sig (Elt F)) := stepOps185 ++ opsFrom186
theorem opsFrom185_ok : (opsFrom185 : List (HloOp τ sig (Elt F))).Forall (OpOk 10) := List.forall_append.mpr ⟨stepOps185_ok, opsFrom186_ok⟩
theorem after_opsFrom185 (V : Valuation τ sig (Elt F)) : after (opsFrom185 : List (HloOp τ sig (Elt F))) V = after opsFrom186 (after stepOps185 V) := after_append _ _ V
abbrev opsFrom184 : List (HloOp τ sig (Elt F)) := stepOps184 ++ opsFrom185
theorem opsFrom184_ok : (opsFrom184 : List (HloOp τ sig (Elt F))).Forall (OpOk 10) := List.forall_append.mpr ⟨stepOps184_ok, opsFrom185_ok⟩
theorem after_opsFrom184 (V : Valuation τ sig (Elt F)) : after (opsFrom184 : List (HloOp τ sig (Elt F))) V = after opsFrom185 (after stepOps184 V) := after_append _ _ V
abbrev opsFrom183 : List (HloOp τ sig (Elt F)) := stepOps183 ++ opsFrom184
theorem opsFrom183_ok : (opsFrom183 : List (HloOp τ sig (Elt F))).Forall (OpOk 10) := List.forall_append.mpr ⟨stepOps183_ok, opsFrom184_ok⟩
theorem after_opsFrom183 (V : Valuation τ sig (Elt F)) : after (opsFrom183 : List (HloOp τ sig (Elt F))) V = after opsFrom184 (after stepOps183 V) := after_append _ _ V
abbrev opsFrom182 : List (HloOp τ sig (Elt F)) := stepOps182 ++ opsFrom183
theorem opsFrom182_ok : (opsFrom182 : List (HloOp τ sig (Elt F))).Forall (OpOk 10) := List.forall_append.mpr ⟨stepOps182_ok, opsFrom183_ok⟩
theorem after_opsFrom182 (V : Valuation τ sig (Elt F)) : after (opsFrom182 : List (HloOp τ sig (Elt F))) V = after opsFrom183 (after stepOps182 V) := after_append _ _ V
abbrev opsFrom181 : List (HloOp τ sig (Elt F)) := stepOps181 ++ opsFrom182
theorem opsFrom181_ok : (opsFrom181 : List (HloOp τ sig (Elt F))).Forall (OpOk 10) := List.forall_append.mpr ⟨stepOps181_ok, opsFrom182_ok⟩
theorem after_opsFrom181 (V : Valuation τ sig (Elt F)) : after (opsFrom181 : List (HloOp τ sig (Elt F))) V = after opsFrom182 (after stepOps181 V) := after_append _ _ V
abbrev opsFrom180 : List (HloOp τ sig (Elt F)) := stepOps180 ++ opsFrom181
theorem opsFrom180_ok : (opsFrom180 : List (HloOp τ sig (Elt F))).Forall (OpOk 10) := List.forall_append.mpr ⟨stepOps180_ok, opsFrom181_ok⟩
theorem after_opsFrom180 (V : Valuation τ sig (Elt F)) : after (opsFrom180 : List (HloOp τ sig (Elt F))) V = after opsFrom181 (after stepOps180 V) := after_append _ _ V
abbrev opsFrom179 : List (HloOp τ sig (Elt F)) := stepOps179 ++ opsFrom180
theorem opsFrom179_ok : (opsFrom179 : List (HloOp τ sig (Elt F))).Forall (OpOk 10) := List.forall_append.mpr ⟨stepOps179_ok, opsFrom180_ok⟩
theorem after_opsFrom179 (V : Valuation τ sig (Elt F)) : after (opsFrom179 : List (HloOp τ sig (Elt F))) V = after opsFrom180 (after stepOps179 V) := after_append _ _ V
abbrev opsFrom178 : List (HloOp τ sig (Elt F)) := stepOps178 ++ opsFrom179
theorem opsFrom178_ok : (opsFrom178 : List (HloOp τ sig (Elt F))).Forall (OpOk 10) := List.forall_append.mpr ⟨stepOps178_ok, opsFrom179_ok⟩
theorem after_opsFrom178 (V : Valuation τ sig (Elt F)) : after (opsFrom178 : List (HloOp τ sig (Elt F))) V = after opsFrom179 (after stepOps178 V) := after_append _ _ V
abbrev opsFrom177 : List (HloOp τ sig (Elt F)) := stepOps177 ++ opsFrom178
theorem opsFrom177_ok : (opsFrom177 : List (HloOp τ sig (Elt F))).Forall (OpOk 10) := List.forall_append.mpr ⟨stepOps177_ok, opsFrom178_ok⟩
theorem after_opsFrom177 (V : Valuation τ sig (Elt F)) : after (opsFrom177 : List (HloOp τ sig (Elt F))) V = after opsFrom178 (after stepOps177 V) := after_append _ _ V
abbrev opsFrom176 : List (HloOp τ sig (Elt F)) := stepOps176 ++ opsFrom177
theorem opsFrom176_ok : (opsFrom176 : List (HloOp τ sig (Elt F))).Forall (OpOk 10) := List.forall_append.mpr ⟨stepOps176_ok, opsFrom177_ok⟩
theorem after_opsFrom176 (V : Valuation τ sig (Elt F)) : after (opsFrom176 : List (HloOp τ sig (Elt F))) V = after opsFrom177 (after stepOps176 V) := after_append _ _ V
abbrev opsFrom175 : List (HloOp τ sig (Elt F)) := stepOps175 ++ opsFrom176
theorem opsFrom175_ok : (opsFrom175 : List (HloOp τ sig (Elt F))).Forall (OpOk 10) := List.forall_append.mpr ⟨stepOps175_ok, opsFrom176_ok⟩
theorem after_opsFrom175 (V : Valuation τ sig (Elt F)) : after (opsFrom175 : List (HloOp τ sig (Elt F))) V = after opsFrom176 (after stepOps175 V) := after_append _ _ V
abbrev opsFrom174 : List (HloOp τ sig (Elt F)) := stepOps174 ++ opsFrom175
theorem opsFrom174_ok : (opsFrom174 : List (HloOp τ sig (Elt F))).Forall (OpOk 10) := List.forall_append.mpr ⟨stepOps174_ok, opsFrom175_ok⟩
theorem after_opsFrom174 (V : Valuation τ sig (Elt F)) : after (opsFrom174 : List (HloOp τ sig (Elt F))) V = after opsFrom175 (after stepOps174 V) := after_append _ _ V
abbrev opsFrom173 : List (HloOp τ sig (Elt F)) := stepOps173 ++ opsFrom174
theorem opsFrom173_ok : (opsFrom173 : List (HloOp τ sig (Elt F))).Forall (OpOk 10) := List.forall_append.mpr ⟨stepOps173_ok, opsFrom174_ok⟩
theorem after_opsFrom173 (V : Valuation τ sig (Elt F)) : after (opsFrom173 : List (HloOp τ sig (Elt F))) V = after opsFrom174 (after stepOps173 V) := after_append _ _ V
abbrev opsFrom172 : List (HloOp τ sig (Elt F)) := stepOps172 ++ opsFrom173
theorem opsFrom172_ok : (opsFrom172 : List (HloOp τ sig (Elt F))).Forall (OpOk 10) := List.forall_append.mpr ⟨stepOps172_ok, opsFrom173_ok⟩
theorem after_opsFrom172 (V : Valuation τ sig (Elt F)) : after (opsFrom172 : List (HloOp τ sig (Elt F))) V = after opsFrom173 (after stepOps172 V) := after_append _ _ V
abbrev opsFrom171 : List (HloOp τ sig (Elt F)) := stepOps171 ++ opsFrom172
theorem opsFrom171_ok : (opsFrom171 : List (HloOp τ sig (Elt F))).Forall (OpOk 10) := List.forall_append.mpr ⟨stepOps171_ok, opsFrom172_ok⟩
theorem after_opsFrom171 (V : Valuation τ sig (Elt F)) : after (opsFrom171 : List (HloOp τ sig (Elt F))) V = after opsFrom172 (after stepOps171 V) := after_append _ _ V
abbrev opsFrom170 : List (HloOp τ sig (Elt F)) := stepOps170 ++ opsFrom171
theorem opsFrom170_ok : (opsFrom170 : List (HloOp τ sig (Elt F))).Forall (OpOk 10) := List.forall_append.mpr ⟨stepOps170_ok, opsFrom171_ok⟩
theorem after_opsFrom170 (V : Valuation τ sig (Elt F)) : after (opsFrom170 : List (HloOp τ sig (Elt F))) V = after opsFrom171 (after stepOps170 V) := after_append _ _ V
abbrev opsFrom169 : List (HloOp τ sig (Elt F)) := stepOps169 ++ opsFrom170
theorem opsFrom169_ok : (opsFrom169 : List (HloOp τ sig (Elt F))).Forall (OpOk 10) := List.forall_append.mpr ⟨stepOps169_ok, opsFrom170_ok⟩
theorem after_opsFrom169 (V : Valuation τ sig (Elt F)) : after (opsFrom169 : List (HloOp τ sig (Elt F))) V = after opsFrom170 (after stepOps169 V) := after_append _ _ V
abbrev opsFrom168 : List (HloOp τ sig (Elt F)) := stepOps168 ++ opsFrom169
theorem opsFrom168_ok : (opsFrom168 : List (HloOp τ sig (Elt F))).Forall (OpOk 10) := List.forall_append.mpr ⟨stepOps168_ok, opsFrom169_ok⟩
theorem after_opsFrom168 (V : Valuation τ sig (Elt F)) : after (opsFrom168 : List (HloOp τ sig (Elt F))) V = after opsFrom169 (after stepOps168 V) := after_append _ _ V
abbrev opsFrom167 : List (HloOp τ sig (Elt F)) := stepOps167 ++ opsFrom168
theorem opsFrom167_ok : (opsFrom167 : List (HloOp τ sig (Elt F))).Forall (OpOk 10) := List.forall_append.mpr ⟨stepOps167_ok, opsFrom168_ok⟩
theorem after_opsFrom167 (V : Valuation τ sig (Elt F)) : after (opsFrom167 : List (HloOp τ sig (Elt F))) V = after opsFrom168 (after stepOps167 V) := after_append _ _ V
abbrev opsFrom166 : List (HloOp τ sig (Elt F)) := stepOps166 ++ opsFrom167
theorem opsFrom166_ok : (opsFrom166 : List (HloOp τ sig (Elt F))).Forall (OpOk 10) := List.forall_append.mpr ⟨stepOps166_ok, opsFrom167_ok⟩
theorem after_opsFrom166 (V : Valuation τ sig (Elt F)) : after (opsFrom166 : List (HloOp τ sig (Elt F))) V = after opsFrom167 (after stepOps166 V) := after_append _ _ V
abbrev opsFrom165 : List (HloOp τ sig (Elt F)) := stepOps165 ++ opsFrom166
theorem opsFrom165_ok : (opsFrom165 : List (HloOp τ sig (Elt F))).Forall (OpOk 10) := List.forall_append.mpr ⟨stepOps165_ok, opsFrom166_ok⟩
theorem after_opsFrom165 (V : Valuation τ sig (Elt F)) : after (opsFrom165 : List (HloOp τ sig (Elt F))) V = after opsFrom166 (after stepOps165 V) := after_append _ _ V
abbrev opsFrom164 : List (HloOp τ sig (Elt F)) := stepOps164 ++ opsFrom165
theorem opsFrom164_ok : (opsFrom164 : List (HloOp τ sig (Elt F))).Forall (OpOk 10) := List.forall_append.mpr ⟨stepOps164_ok, opsFrom165_ok⟩
theorem after_opsFrom164 (V : Valuation τ sig (Elt F)) : after (opsFrom164 : List (HloOp τ sig (Elt F))) V = after opsFrom165 (after stepOps164 V) := after_append _ _ V
abbrev opsFrom163 : List (HloOp τ sig (Elt F)) := stepOps163 ++ opsFrom164
theorem opsFrom163_ok : (opsFrom163 : List (HloOp τ sig (Elt F))).Forall (OpOk 10) := List.forall_append.mpr ⟨stepOps163_ok, opsFrom164_ok⟩
theorem after_opsFrom163 (V : Valuation τ sig (Elt F)) : after (opsFrom163 : List (HloOp τ sig (Elt F))) V = after opsFrom164 (after stepOps163 V) := after_append _ _ V
abbrev opsFrom162 : List (HloOp τ sig (Elt F)) := stepOps162 ++ opsFrom163
theorem opsFrom162_ok : (opsFrom162 : List (HloOp τ sig (Elt F))).Forall (OpOk 10) := List.forall_append.mpr ⟨stepOps162_ok, opsFrom163_ok⟩
theorem after_opsFrom162 (V : Valuation τ sig (Elt F)) : after (opsFrom162 : List (HloOp τ sig (Elt F))) V = after opsFrom163 (after stepOps162 V) := after_append _ _ V
abbrev opsFrom161 : List (HloOp τ sig (Elt F)) := stepOps161 ++ opsFrom162
theorem opsFrom161_ok : (opsFrom161 : List (HloOp τ sig (Elt F))).Forall (OpOk 10) := List.forall_append.mpr ⟨stepOps161_ok, opsFrom162_ok⟩
theorem after_opsFrom161 (V : Valuation τ sig (Elt F)) : after (opsFrom161 : List (HloOp τ sig (Elt F))) V = after opsFrom162 (after stepOps161 V) := after_append _ _ V
abbrev opsFrom160 : List (HloOp τ sig (Elt F)) := stepOps160 ++ opsFrom161
theorem opsFrom160_ok : (opsFrom160 : List (HloOp τ sig (Elt F))).Forall (OpOk 10) := List.forall_append.mpr ⟨stepOps160_ok, opsFrom161_ok⟩
theorem after_opsFrom160 (V : Valuation τ sig (Elt F)) : after (opsFrom160 : List (HloOp τ sig (Elt F))) V = after opsFrom161 (after stepOps160 V) := after_append _ _ V
abbrev opsFrom159 : List (HloOp τ sig (Elt F)) := stepOps159 ++ opsFrom160
theorem opsFrom159_ok : (opsFrom159 : List (HloOp τ sig (Elt F))).Forall (OpOk 10) := List.forall_append.mpr ⟨stepOps159_ok, opsFrom160_ok⟩
theorem after_opsFrom159 (V : Valuation τ sig (Elt F)) : after (opsFrom159 : List (HloOp τ sig (Elt F))) V = after opsFrom160 (after stepOps159 V) := after_append _ _ V
abbrev opsFrom158 : List (HloOp τ sig (Elt F)) := stepOps158 ++ opsFrom159
theorem opsFrom158_ok : (opsFrom158 : List (HloOp τ sig (Elt F))).Forall (OpOk 10) := List.forall_append.mpr ⟨stepOps158_ok, opsFrom159_ok⟩
theorem after_opsFrom158 (V : Valuation τ sig (Elt F)) : after (opsFrom158 : List (HloOp τ sig (Elt F))) V = after opsFrom159 (after stepOps158 V) := after_append _ _ V
abbrev opsFrom157 : List (HloOp τ sig (Elt F)) := stepOps157 ++ opsFrom158
theorem opsFrom157_ok : (opsFrom157 : List (HloOp τ sig (Elt F))).Forall (OpOk 10) := List.forall_append.mpr ⟨stepOps157_ok, opsFrom158_ok⟩
theorem after_opsFrom157 (V : Valuation τ sig (Elt F)) : after (opsFrom157 : List (HloOp τ sig (Elt F))) V = after opsFrom158 (after stepOps157 V) := after_append _ _ V
abbrev opsFrom156 : List (HloOp τ sig (Elt F)) := stepOps156 ++ opsFrom157
theorem opsFrom156_ok : (opsFrom156 : List (HloOp τ sig (Elt F))).Forall (OpOk 10) := List.forall_append.mpr ⟨stepOps156_ok, opsFrom157_ok⟩
theorem after_opsFrom156 (V : Valuation τ sig (Elt F)) : after (opsFrom156 : List (HloOp τ sig (Elt F))) V = after opsFrom157 (after stepOps156 V) := after_append _ _ V
abbrev opsFrom155 : List (HloOp τ sig (Elt F)) := stepOps155 ++ opsFrom156
theorem opsFrom155_ok : (opsFrom155 : List (HloOp τ sig (Elt F))).Forall (OpOk 10) := List.forall_append.mpr ⟨stepOps155_ok, opsFrom156_ok⟩
theorem after_opsFrom155 (V : Valuation τ sig (Elt F)) : after (opsFrom155 : List (HloOp τ sig (Elt F))) V = after opsFrom156 (after stepOps155 V) := after_append _ _ V
abbrev opsFrom154 : List (HloOp τ sig (Elt F)) := stepOps154 ++ opsFrom155
theorem opsFrom154_ok : (opsFrom154 : List (HloOp τ sig (Elt F))).Forall (OpOk 10) := List.forall_append.mpr ⟨stepOps154_ok, opsFrom155_ok⟩
theorem after_opsFrom154 (V : Valuation τ sig (Elt F)) : after (opsFrom154 : List (HloOp τ sig (Elt F))) V = after opsFrom155 (after stepOps154 V) := after_append _ _ V
abbrev opsFrom153 : List (HloOp τ sig (Elt F)) := stepOps153 ++ opsFrom154
theorem opsFrom153_ok : (opsFrom153 : List (HloOp τ sig (Elt F))).Forall (OpOk 10) := List.forall_append.mpr ⟨stepOps153_ok, opsFrom154_ok⟩
theorem after_opsFrom153 (V : Valuation τ sig (Elt F)) : after (opsFrom153 : List (HloOp τ sig (Elt F))) V = after opsFrom154 (after stepOps153 V) := after_append _ _ V
abbrev opsFrom152 : List (HloOp τ sig (Elt F)) := stepOps152 ++ opsFrom153
theorem opsFrom152_ok : (opsFrom152 : List (HloOp τ sig (Elt F))).Forall (OpOk 10) := List.forall_append.mpr ⟨stepOps152_ok, opsFrom153_ok⟩
theorem after_opsFrom152 (V : Valuation τ sig (Elt F)) : after (opsFrom152 : List (HloOp τ sig (Elt F))) V = after opsFrom153 (after stepOps152 V) := after_append _ _ V
abbrev opsFrom151 : List (HloOp τ sig (Elt F)) := stepOps151 ++ opsFrom152
theorem opsFrom151_ok : (opsFrom151 : List (HloOp τ sig (Elt F))).Forall (OpOk 10) := List.forall_append.mpr ⟨stepOps151_ok, opsFrom152_ok⟩
theorem after_opsFrom151 (V : Valuation τ sig (Elt F)) : after (opsFrom151 : List (HloOp τ sig (Elt F))) V = after opsFrom152 (after stepOps151 V) := after_append _ _ V
abbrev opsFrom150 : List (HloOp τ sig (Elt F)) := stepOps150 ++ opsFrom151
theorem opsFrom150_ok : (opsFrom150 : List (HloOp τ sig (Elt F))).Forall (OpOk 10) := List.forall_append.mpr ⟨stepOps150_ok, opsFrom151_ok⟩
theorem after_opsFrom150 (V : Valuation τ sig (Elt F)) : after (opsFrom150 : List (HloOp τ sig (Elt F))) V = after opsFrom151 (after stepOps150 V) := after_append _ _ V
abbrev opsFrom149 : List (HloOp τ sig (Elt F)) := stepOps149 ++ opsFrom150
theorem opsFrom149_ok : (opsFrom149 : List (HloOp τ sig (Elt F))).Forall (OpOk 10) := List.forall_append.mpr ⟨stepOps149_ok, opsFrom150_ok⟩
theorem after_opsFrom149 (V : Valuation τ sig (Elt F)) : after (opsFrom149 : List (HloOp τ sig (Elt F))) V = after opsFrom150 (after stepOps149 V) := after_append _ _ V
abbrev opsFrom148 : List (HloOp τ sig (Elt F)) := stepOps148 ++ opsFrom149
theorem opsFrom148_ok : (opsFrom148 : List (HloOp τ sig (Elt F))).Forall (OpOk 10) := List.forall_append.mpr ⟨stepOps148_ok, opsFrom149_ok⟩
theorem after_opsFrom148 (V : Valuation τ sig (Elt F)) : after (opsFrom148 : List (HloOp τ sig (Elt F))) V = after opsFrom149 (after stepOps148 V) := after_append _ _ V
abbrev opsFrom147 : List (HloOp τ sig (Elt F)) := stepOps147 ++ opsFrom148
theorem opsFrom147_ok : (opsFrom147 : List (HloOp τ sig (Elt F))).Forall (OpOk 10) := List.forall_append.mpr ⟨stepOps147_ok, opsFrom148_ok⟩
theorem after_opsFrom147 (V : Valuation τ sig (Elt F)) : after (opsFrom147 : List (HloOp τ sig (Elt F))) V = after opsFrom148 (after stepOps147 V) := after_append _ _ V
abbrev opsFrom146 : List (HloOp τ sig (Elt F)) := stepOps146 ++ opsFrom147
theorem opsFrom146_ok : (opsFrom146 : List (HloOp τ sig (Elt F))).Forall (OpOk 10) := List.forall_append.mpr ⟨stepOps146_ok, opsFrom147_ok⟩
theorem after_opsFrom146 (V : Valuation τ sig (Elt F)) : after (opsFrom146 : List (HloOp τ sig (Elt F))) V = after opsFrom147 (after stepOps146 V) := after_append _ _ V
abbrev opsFrom145 : List (HloOp τ sig (Elt F)) := stepOps145 ++ opsFrom146
theorem opsFrom145_ok : (opsFrom145 : List (HloOp τ sig (Elt F))).Forall (OpOk 10) := List.forall_append.mpr ⟨stepOps145_ok, opsFrom146_ok⟩
theorem after_opsFrom145 (V : Valuation τ sig (Elt F)) : after (opsFrom145 : List (HloOp τ sig (Elt F))) V = after opsFrom146 (after stepOps145 V) := after_append _ _ V
abbrev opsFrom144 : List (HloOp τ sig (Elt F)) := stepOps144 ++ opsFrom145
theorem opsFrom144_ok : (opsFrom144 : List (HloOp τ sig (Elt F))).Forall (OpOk 10) := List.forall_append.mpr ⟨stepOps144_ok, opsFrom145_ok⟩
theorem after_opsFrom144 (V : Valuation τ sig (Elt F)) : after (opsFrom144 : List (HloOp τ sig (Elt F))) V = after opsFrom145 (after stepOps144 V) := after_append _ _ V
abbrev opsFrom143 : List (HloOp τ sig (Elt F)) := stepOps143 ++ opsFrom144
theorem opsFrom143_ok : (opsFrom143 : List (HloOp τ sig (Elt F))).Forall (OpOk 10) := List.forall_append.mpr ⟨stepOps143_ok, opsFrom144_ok⟩
theorem after_opsFrom143 (V : Valuation τ sig (Elt F)) : after (opsFrom143 : List (HloOp τ sig (Elt F))) V = after opsFrom144 (after stepOps143 V) := after_append _ _ V
abbrev opsFrom142 : List (HloOp τ sig (Elt F)) := stepOps142 ++ opsFrom143
theorem opsFrom142_ok : (opsFrom142 : List (HloOp τ sig (Elt F))).Forall (OpOk 10) := List.forall_append.mpr ⟨stepOps142_ok, opsFrom143_ok⟩
theorem after_opsFrom142 (V : Valuation τ sig (Elt F)) : after (opsFrom142 : List (HloOp τ sig (Elt F))) V = after opsFrom143 (after stepOps142 V) := after_append _ _ V
abbrev opsFrom141 : List (HloOp τ sig (Elt F)) := stepOps141 ++ opsFrom142
theorem opsFrom141_ok : (opsFrom141 : List (HloOp τ sig (Elt F))).Forall (OpOk 10) := List.forall_append.mpr ⟨stepOps141_ok, opsFrom142_ok⟩
theorem after_opsFrom141 (V : Valuation τ sig (Elt F)) : after (opsFrom141 : List (HloOp τ sig (Elt F))) V = after opsFrom142 (after stepOps141 V) := after_append _ _ V
abbrev opsFrom140 : List (HloOp τ sig (Elt F)) := stepOps140 ++ opsFrom141
theorem opsFrom140_ok : (opsFrom140 : List (HloOp τ sig (Elt F))).Forall (OpOk 10) := List.forall_append.mpr ⟨stepOps140_ok, opsFrom141_ok⟩
theorem after_opsFrom140 (V : Valuation τ sig (Elt F)) : after (opsFrom140 : List (HloOp τ sig (Elt F))) V = after opsFrom141 (after stepOps140 V) := after_append _ _ V
abbrev opsFrom139 : List (HloOp τ sig (Elt F)) := stepOps139 ++ opsFrom140
theorem opsFrom139_ok : (opsFrom139 : List (HloOp τ sig (Elt F))).Forall (OpOk 10) := List.forall_append.mpr ⟨stepOps139_ok, opsFrom140_ok⟩
theorem after_opsFrom139 (V : Valuation τ sig (Elt F)) : after (opsFrom139 : List (HloOp τ sig (Elt F))) V = after opsFrom140 (after stepOps139 V) := after_append _ _ V
abbrev opsFrom138 : List (HloOp τ sig (Elt F)) := stepOps138 ++ opsFrom139
theorem opsFrom138_ok : (opsFrom138 : List (HloOp τ sig (Elt F))).Forall (OpOk 10) := List.forall_append.mpr ⟨stepOps138_ok, opsFrom139_ok⟩
theorem after_opsFrom138 (V : Valuation τ sig (Elt F)) : after (opsFrom138 : List (HloOp τ sig (Elt F))) V = after opsFrom139 (after stepOps138 V) := after_append _ _ V
abbrev opsFrom137 : List (HloOp τ sig (Elt F)) := stepOps137 ++ opsFrom138
theorem opsFrom137_ok : (opsFrom137 : List (HloOp τ sig (Elt F))).Forall (OpOk 10) := List.forall_append.mpr ⟨stepOps137_ok, opsFrom138_ok⟩
theorem after_opsFrom137 (V : Valuation τ sig (Elt F)) : after (opsFrom137 : List (HloOp τ sig (Elt F))) V = after opsFrom138 (after stepOps137 V) := after_append _ _ V
abbrev opsFrom136 : List (HloOp τ sig (Elt F)) := stepOps136 ++ opsFrom137
theorem opsFrom136_ok : (opsFrom136 : List (HloOp τ sig (Elt F))).Forall (OpOk 10) := List.forall_append.mpr ⟨stepOps136_ok, opsFrom137_ok⟩
theorem after_opsFrom136 (V : Valuation τ sig (Elt F)) : after (opsFrom136 : List (HloOp τ sig (Elt F))) V = after opsFrom137 (after stepOps136 V) := after_append _ _ V
abbrev opsFrom135 : List (HloOp τ sig (Elt F)) := stepOps135 ++ opsFrom136
theorem opsFrom135_ok : (opsFrom135 : List (HloOp τ sig (Elt F))).Forall (OpOk 10) := List.forall_append.mpr ⟨stepOps135_ok, opsFrom136_ok⟩
theorem after_opsFrom135 (V : Valuation τ sig (Elt F)) : after (opsFrom135 : List (HloOp τ sig (Elt F))) V = after opsFrom136 (after stepOps135 V) := after_append _ _ V
abbrev opsFrom134 : List (HloOp τ sig (Elt F)) := stepOps134 ++ opsFrom135
theorem opsFrom134_ok : (opsFrom134 : List (HloOp τ sig (Elt F))).Forall (OpOk 10) := List.forall_append.mpr ⟨stepOps134_ok, opsFrom135_ok⟩
theorem after_opsFrom134 (V : Valuation τ sig (Elt F)) : after (opsFrom134 : List (HloOp τ sig (Elt F))) V = after opsFrom135 (after stepOps134 V) := after_append _ _ V
abbrev opsFrom133 : List (HloOp τ sig (Elt F)) := stepOps133 ++ opsFrom134
theorem opsFrom133_ok : (opsFrom133 : List (HloOp τ sig (Elt F))).Forall (OpOk 10) := List.forall_append.mpr ⟨stepOps133_ok, opsFrom134_ok⟩
theorem after_opsFrom133 (V : Valuation τ sig (Elt F)) : after (opsFrom133 : List (HloOp τ sig (Elt F))) V = after opsFrom134 (after stepOps133 V) := after_append _ _ V
abbrev opsFrom132 : List (HloOp τ sig (Elt F)) := stepOps132 ++ opsFrom133
theorem opsFrom132_ok : (opsFrom132 : List (HloOp τ sig (Elt F))).Forall (OpOk 10) := List.forall_append.mpr ⟨stepOps132_ok, opsFrom133_ok⟩
theorem after_opsFrom132 (V : Valuation τ sig (Elt F)) : after (opsFrom132 : List (HloOp τ sig (Elt F))) V = after opsFrom133 (after stepOps132 V) := after_append _ _ V
abbrev opsFrom131 : List (HloOp τ sig (Elt F)) := stepOps131 ++ opsFrom132
theorem opsFrom131_ok : (opsFrom131 : List (HloOp τ sig (Elt F))).Forall (OpOk 10) := List.forall_append.mpr ⟨stepOps131_ok, opsFrom132_ok⟩
theorem after_opsFrom131 (V : Valuation τ sig (Elt F)) : after (opsFrom131 : List (HloOp τ sig (Elt F))) V = after opsFrom132 (after stepOps131 V) := after_append _ _ V
abbrev opsFrom130 : List (HloOp τ sig (Elt F)) := stepOps130 ++ opsFrom131
theorem opsFrom130_ok : (opsFrom130 : List (HloOp τ sig (Elt F))).Forall (OpOk 10) := List.forall_append.mpr ⟨stepOps130_ok, opsFrom131_ok⟩
theorem after_opsFrom130 (V : Valuation τ sig (Elt F)) : after (opsFrom130 : List (HloOp τ sig (Elt F))) V = after opsFrom131 (after stepOps130 V) := after_append _ _ V
abbrev opsFrom129 : List (HloOp τ sig (Elt F)) := stepOps129 ++ opsFrom130
theorem opsFrom129_ok : (opsFrom129 : List (HloOp τ sig (Elt F))).Forall (OpOk 10) := List.forall_append.mpr ⟨stepOps129_ok, opsFrom130_ok⟩
theorem after_opsFrom129 (V : Valuation τ sig (Elt F)) : after (opsFrom129 : List (HloOp τ sig (Elt F))) V = after opsFrom130 (after stepOps129 V) := after_append _ _ V
abbrev opsFrom128 : List (HloOp τ sig (Elt F)) := stepOps128 ++ opsFrom129
theorem opsFrom128_ok : (opsFrom128 : List (HloOp τ sig (Elt F))).Forall (OpOk 10) := List.forall_append.mpr ⟨stepOps128_ok, opsFrom129_ok⟩
theorem after_opsFrom128 (V : Valuation τ sig (Elt F)) : after (opsFrom128 : List (HloOp τ sig (Elt F))) V = after opsFrom129 (after stepOps128 V) := after_append _ _ V
abbrev opsFrom127 : List (HloOp τ sig (Elt F)) := stepOps127 ++ opsFrom128
theorem opsFrom127_ok : (opsFrom127 : List (HloOp τ sig (Elt F))).Forall (OpOk 10) := List.forall_append.mpr ⟨stepOps127_ok, opsFrom128_ok⟩
theorem after_opsFrom127 (V : Valuation τ sig (Elt F)) : after (opsFrom127 : List (HloOp τ sig (Elt F))) V = after opsFrom128 (after stepOps127 V) := after_append _ _ V
abbrev opsFrom126 : List (HloOp τ sig (Elt F)) := stepOps126 ++ opsFrom127
theorem opsFrom126_ok : (opsFrom126 : List (HloOp τ sig (Elt F))).Forall (OpOk 10) := List.forall_append.mpr ⟨stepOps126_ok, opsFrom127_ok⟩
theorem after_opsFrom126 (V : Valuation τ sig (Elt F)) : after (opsFrom126 : List (HloOp τ sig (Elt F))) V = after opsFrom127 (after stepOps126 V) := after_append _ _ V
abbrev opsFrom125 : List (HloOp τ sig (Elt F)) := stepOps125 ++ opsFrom126
theorem opsFrom125_ok : (opsFrom125 : List (HloOp τ sig (Elt F))).Forall (OpOk 10) := List.forall_append.mpr ⟨stepOps125_ok, opsFrom126_ok⟩
theorem after_opsFrom125 (V : Valuation τ sig (Elt F)) : after (opsFrom125 : List (HloOp τ sig (Elt F))) V = after opsFrom126 (after stepOps125 V) := after_append _ _ V
abbrev opsFrom124 : List (HloOp τ sig (Elt F)) := stepOps124 ++ opsFrom125
theorem opsFrom124_ok : (opsFrom124 : List (HloOp τ sig (Elt F))).Forall (OpOk 10) := List.forall_append.mpr ⟨stepOps124_ok, opsFrom125_ok⟩
theorem after_opsFrom124 (V : Valuation τ sig (Elt F)) : after (opsFrom124 : List (HloOp τ sig (Elt F))) V = after opsFrom125 (after stepOps124 V) := after_append _ _ V
abbrev opsFrom123 : List (HloOp τ sig (Elt F)) := stepOps123 ++ opsFrom124
theorem opsFrom123_ok : (opsFrom123 : List (HloOp τ sig (Elt F))).Forall (OpOk 10) := List.forall_append.mpr ⟨stepOps123_ok, opsFrom124_ok⟩
theorem after_opsFrom123 (V : Valuation τ sig (Elt F)) : after (opsFrom123 : List (HloOp τ sig (Elt F))) V = after opsFrom124 (after stepOps123 V) := after_append _ _ V
abbrev opsFrom122 : List (HloOp τ sig (Elt F)) := stepOps122 ++ opsFrom123
theorem opsFrom122_ok : (opsFrom122 : List (HloOp τ sig (Elt F))).Forall (OpOk 10) := List.forall_append.mpr ⟨stepOps122_ok, opsFrom123_ok⟩
theorem after_opsFrom122 (V : Valuation τ sig (Elt F)) : after (opsFrom122 : List (HloOp τ sig (Elt F))) V = after opsFrom123 (after stepOps122 V) := after_append _ _ V
abbrev opsFrom121 : List (HloOp τ sig (Elt F)) := stepOps121 ++ opsFrom122
theorem opsFrom121_ok : (opsFrom121 : List (HloOp τ sig (Elt F))).Forall (OpOk 10) := List.forall_append.mpr ⟨stepOps121_ok, opsFrom122_ok⟩
theorem after_opsFrom121 (V : Valuation τ sig (Elt F)) : after (opsFrom121 : List (HloOp τ sig (Elt F))) V = after opsFrom122 (after stepOps121 V) := after_append _ _ V
abbrev opsFrom120 : List (HloOp τ sig (Elt F)) := stepOps120 ++ opsFrom121
theorem opsFrom120_ok : (opsFrom120 : List (HloOp τ sig (Elt F))).Forall (OpOk 10) := List.forall_append.mpr ⟨stepOps120_ok, opsFrom121_ok⟩
theorem after_opsFrom120 (V : Valuation τ sig (Elt F)) : after (opsFrom120 : List (HloOp τ sig (Elt F))) V = after opsFrom121 (after stepOps120 V) := after_append _ _ V
abbrev opsFrom119 : List (HloOp τ sig (Elt F)) := stepOps119 ++ opsFrom120
theorem opsFrom119_ok : (opsFrom119 : List (HloOp τ sig (Elt F))).Forall (OpOk 10) := List.forall_append.mpr ⟨stepOps119_ok, opsFrom120_ok⟩
theorem after_opsFrom119 (V : Valuation τ sig (Elt F)) : after (opsFrom119 : List (HloOp τ sig (Elt F))) V = after opsFrom120 (after stepOps119 V) := after_append _ _ V
abbrev opsFrom118 : List (HloOp τ sig (Elt F)) := stepOps118 ++ opsFrom119
theorem opsFrom118_ok : (opsFrom118 : List (HloOp τ sig (Elt F))).Forall (OpOk 10) := List.forall_append.mpr ⟨stepOps118_ok, opsFrom119_ok⟩
theorem after_opsFrom118 (V : Valuation τ sig (Elt F)) : after (opsFrom118 : List (HloOp τ sig (Elt F))) V = after opsFrom119 (after stepOps118 V) := after_append _ _ V
abbrev opsFrom117 : List (HloOp τ sig (Elt F)) := stepOps117 ++ opsFrom118
theorem opsFrom117_ok : (opsFrom117 : List (HloOp τ sig (Elt F))).Forall (OpOk 10) := List.forall_append.mpr ⟨stepOps117_ok, opsFrom118_ok⟩
theorem after_opsFrom117 (V : Valuation τ sig (Elt F)) : after (opsFrom117 : List (HloOp τ sig (Elt F))) V = after opsFrom118 (after stepOps117 V) := after_append _ _ V
abbrev opsFrom116 : List (HloOp τ sig (Elt F)) := stepOps116 ++ opsFrom117
theorem opsFrom116_ok : (opsFrom116 : List (HloOp τ sig (Elt F))).Forall (OpOk 10) := List.forall_append.mpr ⟨stepOps116_ok, opsFrom117_ok⟩
theorem after_opsFrom116 (V : Valuation τ sig (Elt F)) : after (opsFrom116 : List (HloOp τ sig (Elt F))) V = after opsFrom117 (after stepOps116 V) := after_append _ _ V
abbrev opsFrom115 : List (HloOp τ sig (Elt F)) := stepOps115 ++ opsFrom116
theorem opsFrom115_ok : (opsFrom115 : List (HloOp τ sig (Elt F))).Forall (OpOk 10) := List.forall_append.mpr ⟨stepOps115_ok, opsFrom116_ok⟩
theorem after_opsFrom115 (V : Valuation τ sig (Elt F)) : after (opsFrom115 : List (HloOp τ sig (Elt F))) V = after opsFrom116 (after stepOps115 V) := after_append _ _ V
abbrev opsFrom114 : List (HloOp τ sig (Elt F)) := stepOps114 ++ opsFrom115
theorem opsFrom114_ok : (opsFrom114 : List (HloOp τ sig (Elt F))).Forall (OpOk 10) := List.forall_append.mpr ⟨stepOps114_ok, opsFrom115_ok⟩
theorem after_opsFrom114 (V : Valuation τ sig (Elt F)) : after (opsFrom114 : List (HloOp τ sig (Elt F))) V = after opsFrom115 (after stepOps114 V) := after_append _ _ V
abbrev opsFrom113 : List (HloOp τ sig (Elt F)) := stepOps113 ++ opsFrom114
theorem opsFrom113_ok : (opsFrom113 : List (HloOp τ sig (Elt F))).Forall (OpOk 10) := List.forall_append.mpr ⟨stepOps113_ok, opsFrom114_ok⟩
theorem after_opsFrom113 (V : Valuation τ sig (Elt F)) : after (opsFrom113 : List (HloOp τ sig (Elt F))) V = after opsFrom114 (after stepOps113 V) := after_append _ _ V
abbrev opsFrom112 : List (HloOp τ sig (Elt F)) := stepOps112 ++ opsFrom113
theorem opsFrom112_ok : (opsFrom112 : List (HloOp τ sig (Elt F))).Forall (OpOk 10) := List.forall_append.mpr ⟨stepOps112_ok, opsFrom113_ok⟩
theorem after_opsFrom112 (V : Valuation τ sig (Elt F)) : after (opsFrom112 : List (HloOp τ sig (Elt F))) V = after opsFrom113 (after stepOps112 V) := after_append _ _ V
abbrev opsFrom111 : List (HloOp τ sig (Elt F)) := stepOps111 ++ opsFrom112
theorem opsFrom111_ok : (opsFrom111 : List (HloOp τ sig (Elt F))).Forall (OpOk 10) := List.forall_append.mpr ⟨stepOps111_ok, opsFrom112_ok⟩
theorem after_opsFrom111 (V : Valuation τ sig (Elt F)) : after (opsFrom111 : List (HloOp τ sig (Elt F))) V = after opsFrom112 (after stepOps111 V) := after_append _ _ V
abbrev opsFrom110 : List (HloOp τ sig (Elt F)) := stepOps110 ++ opsFrom111
theorem opsFrom110_ok : (opsFrom110 : List (HloOp τ sig (Elt F))).Forall (OpOk 10) := List.forall_append.mpr ⟨stepOps110_ok, opsFrom111_ok⟩
theorem after_opsFrom110 (V : Valuation τ sig (Elt F)) : after (opsFrom110 : List (HloOp τ sig (Elt F))) V = after opsFrom111 (after stepOps110 V) := after_append _ _ V
abbrev opsFrom109 : List (HloOp τ sig (Elt F)) := stepOps109 ++ opsFrom110
theorem opsFrom109_ok : (opsFrom109 : List (HloOp τ sig (Elt F))).Forall (OpOk 10) := List.forall_append.mpr ⟨stepOps109_ok, opsFrom110_ok⟩
theorem after_opsFrom109 (V : Valuation τ sig (Elt F)) : after (opsFrom109 : List (HloOp τ sig (Elt F))) V = after opsFrom110 (after stepOps109 V) := after_append _ _ V
abbrev opsFrom108 : List (HloOp τ sig (Elt F)) := stepOps108 ++ opsFrom109
theorem opsFrom108_ok : (opsFrom108 : List (HloOp τ sig (Elt F))).Forall (OpOk 10) := List.forall_append.mpr ⟨stepOps108_ok, opsFrom109_ok⟩
theorem after_opsFrom108 (V : Valuation τ sig (Elt F)) : after (opsFrom108 : List (HloOp τ sig (Elt F))) V = after opsFrom109 (after stepOps108 V) := after_append _ _ V
abbrev opsFrom107 : List (HloOp τ sig (Elt F)) := stepOps107 ++ opsFrom108
theorem opsFrom107_ok : (opsFrom107 : List (HloOp τ sig (Elt F))).Forall (OpOk 10) := List.forall_append.mpr ⟨stepOps107_ok, opsFrom108_ok⟩
theorem after_opsFrom107 (V : Valuation τ sig (Elt F)) : after (opsFrom107 : List (HloOp τ sig (Elt F))) V = after opsFrom108 (after stepOps107 V) := after_append _ _ V
abbrev opsFrom106 : List (HloOp τ sig (Elt F)) := stepOps106 ++ opsFrom107
theorem opsFrom106_ok : (opsFrom106 : List (HloOp τ sig (Elt F))).Forall (OpOk 10) := List.forall_append.mpr ⟨stepOps106_ok, opsFrom107_ok⟩
theorem after_opsFrom106 (V : Valuation τ sig (Elt F)) : after (opsFrom106 : List (HloOp τ sig (Elt F))) V = after opsFrom107 (after stepOps106 V) := after_append _ _ V
abbrev opsFrom105 : List (HloOp τ sig (Elt F)) := stepOps105 ++ opsFrom106
theorem opsFrom105_ok : (opsFrom105 : List (HloOp τ sig (Elt F))).Forall (OpOk 10) := List.forall_append.mpr ⟨stepOps105_ok, opsFrom106_ok⟩
theorem after_opsFrom105 (V : Valuation τ sig (Elt F)) : after (opsFrom105 : List (HloOp τ sig (Elt F))) V = after opsFrom106 (after stepOps105 V) := after_append _ _ V
abbrev opsFrom104 : List (HloOp τ sig (Elt F)) := stepOps104 ++ opsFrom105
theorem opsFrom104_ok : (opsFrom104 : List (HloOp τ sig (Elt F))).Forall (OpOk 10) := List.forall_append.mpr ⟨stepOps104_ok, opsFrom105_ok⟩
theorem after_opsFrom104 (V : Valuation τ sig (Elt F)) : after (opsFrom104 : List (HloOp τ sig (Elt F))) V = after opsFrom105 (after stepOps104 V) := after_append _ _ V
abbrev opsFrom103 : List (HloOp τ sig (Elt F)) := stepOps103 ++ opsFrom104
theorem opsFrom103_ok : (opsFrom103 : List (HloOp τ sig (Elt F))).Forall (OpOk 10) := List.forall_append.mpr ⟨stepOps103_ok, opsFrom104_ok⟩
theorem after_opsFrom103 (V : Valuation τ sig (Elt F)) : after (opsFrom103 : List (HloOp τ sig (Elt F))) V = after opsFrom104 (after stepOps103 V) := after_append _ _ V
abbrev opsFrom102 : List (HloOp τ sig (Elt F)) := stepOps102 ++ opsFrom103
theorem opsFrom102_ok : (opsFrom102 : List (HloOp τ sig (Elt F))).Forall (OpOk 10) := List.forall_append.mpr ⟨stepOps102_ok, opsFrom103_ok⟩
theorem after_opsFrom102 (V : Valuation τ sig (Elt F)) : after (opsFrom102 : List (HloOp τ sig (Elt F))) V = after opsFrom103 (after stepOps102 V) := after_append _ _ V
abbrev opsFrom101 : List (HloOp τ sig (Elt F)) := stepOps101 ++ opsFrom102
theorem opsFrom101_ok : (opsFrom101 : List (HloOp τ sig (Elt F))).Forall (OpOk 10) := List.forall_append.mpr ⟨stepOps101_ok, opsFrom102_ok⟩
theorem after_opsFrom101 (V : Valuation τ sig (Elt F)) : after (opsFrom101 : List (HloOp τ sig (Elt F))) V = after opsFrom102 (after stepOps101 V) := after_append _ _ V
abbrev opsFrom100 : List (HloOp τ sig (Elt F)) := stepOps100 ++ opsFrom101
theorem opsFrom100_ok : (opsFrom100 : List (HloOp τ sig (Elt F))).Forall (OpOk 10) := List.forall_append.mpr ⟨stepOps100_ok, opsFrom101_ok⟩
theorem after_opsFrom100 (V : Valuation τ sig (Elt F)) : after (opsFrom100 : List (HloOp τ sig (Elt F))) V = after opsFrom101 (after stepOps100 V) := after_append _ _ V
abbrev opsFrom99 : List (HloOp τ sig (Elt F)) := stepOps99 ++ opsFrom100
theorem opsFrom99_ok : (opsFrom99 : List (HloOp τ sig (Elt F))).Forall (OpOk 10) := List.forall_append.mpr ⟨stepOps99_ok, opsFrom100_ok⟩
theorem after_opsFrom99 (V : Valuation τ sig (Elt F)) : after (opsFrom99 : List (HloOp τ sig (Elt F))) V = after opsFrom100 (after stepOps99 V) := after_append _ _ V
abbrev opsFrom98 : List (HloOp τ sig (Elt F)) := stepOps98 ++ opsFrom99
theorem opsFrom98_ok : (opsFrom98 : List (HloOp τ sig (Elt F))).Forall (OpOk 10) := List.forall_append.mpr ⟨stepOps98_ok, opsFrom99_ok⟩
theorem after_opsFrom98 (V : Valuation τ sig (Elt F)) : after (opsFrom98 : List (HloOp τ sig (Elt F))) V = after opsFrom99 (after stepOps98 V) := after_append _ _ V
abbrev opsFrom97 : List (HloOp τ sig (Elt F)) := stepOps97 ++ opsFrom98
theorem opsFrom97_ok : (opsFrom97 : List (HloOp τ sig (Elt F))).Forall (OpOk 10) := List.forall_append.mpr ⟨stepOps97_ok, opsFrom98_ok⟩
theorem after_opsFrom97 (V : Valuation τ sig (Elt F)) : after (opsFrom97 : List (HloOp τ sig (Elt F))) V = after opsFrom98 (after stepOps97 V) := after_append _ _ V
abbrev opsFrom96 : List (HloOp τ sig (Elt F)) := stepOps96 ++ opsFrom97
theorem opsFrom96_ok : (opsFrom96 : List (HloOp τ sig (Elt F))).Forall (OpOk 10) := List.forall_append.mpr ⟨stepOps96_ok, opsFrom97_ok⟩
theorem after_opsFrom96 (V : Valuation τ sig (Elt F)) : after (opsFrom96 : List (HloOp τ sig (Elt F))) V = after opsFrom97 (after stepOps96 V) := after_append _ _ V
abbrev opsFrom95 : List (HloOp τ sig (Elt F)) := stepOps95 ++ opsFrom96
theorem opsFrom95_ok : (opsFrom95 : List (HloOp τ sig (Elt F))).Forall (OpOk 10) := List.forall_append.mpr ⟨stepOps95_ok, opsFrom96_ok⟩
theorem after_opsFrom95 (V : Valuation τ sig (Elt F)) : after (opsFrom95 : List (HloOp τ sig (Elt F))) V = after opsFrom96 (after stepOps95 V) := after_append _ _ V
abbrev opsFrom94 : List (HloOp τ sig (Elt F)) := stepOps94 ++ opsFrom95
theorem opsFrom94_ok : (opsFrom94 : List (HloOp τ sig (Elt F))).Forall (OpOk 10) := List.forall_append.mpr ⟨stepOps94_ok, opsFrom95_ok⟩
theorem after_opsFrom94 (V : Valuation τ sig (Elt F)) : after (opsFrom94 : List (HloOp τ sig (Elt F))) V = after opsFrom95 (after stepOps94 V) := after_append _ _ V
abbrev opsFrom93 : List (HloOp τ sig (Elt F)) := stepOps93 ++ opsFrom94
theorem opsFrom93_ok : (opsFrom93 : List (HloOp τ sig (Elt F))).Forall (OpOk 10) := List.forall_append.mpr ⟨stepOps93_ok, opsFrom94_ok⟩
theorem after_opsFrom93 (V : Valuation τ sig (Elt F)) : after (opsFrom93 : List (HloOp τ sig (Elt F))) V = after opsFrom94 (after stepOps93 V) := after_append _ _ V
abbrev opsFrom92 : List (HloOp τ sig (Elt F)) := stepOps92 ++ opsFrom93
theorem opsFrom92_ok : (opsFrom92 : List (HloOp τ sig (Elt F))).Forall (OpOk 10) := List.forall_append.mpr ⟨stepOps92_ok, opsFrom93_ok⟩
theorem after_opsFrom92 (V : Valuation τ sig (Elt F)) : after (opsFrom92 : List (HloOp τ sig (Elt F))) V = after opsFrom93 (after stepOps92 V) := after_append _ _ V
abbrev opsFrom91 : List (HloOp τ sig (Elt F)) := stepOps91 ++ opsFrom92
theorem opsFrom91_ok : (opsFrom91 : List (HloOp τ sig (Elt F))).Forall (OpOk 10) := List.forall_append.mpr ⟨stepOps91_ok, opsFrom92_ok⟩
theorem after_opsFrom91 (V : Valuation τ sig (Elt F)) : after (opsFrom91 : List (HloOp τ sig (Elt F))) V = after opsFrom92 (after stepOps91 V) := after_append _ _ V
abbrev opsFrom90 : List (HloOp τ sig (Elt F)) := stepOps90 ++ opsFrom91
theorem opsFrom90_ok : (opsFrom90 : List (HloOp τ sig (Elt F))).Forall (OpOk 10) := List.forall_append.mpr ⟨stepOps90_ok, opsFrom91_ok⟩
theorem after_opsFrom90 (V : Valuation τ sig (Elt F)) : after (opsFrom90 : List (HloOp τ sig (Elt F))) V = after opsFrom91 (after stepOps90 V) := after_append _ _ V
abbrev opsFrom89 : List (HloOp τ sig (Elt F)) := stepOps89 ++ opsFrom90
theorem opsFrom89_ok : (opsFrom89 : List (HloOp τ sig (Elt F))).Forall (OpOk 10) := List.forall_append.mpr ⟨stepOps89_ok, opsFrom90_ok⟩
theorem after_opsFrom89 (V : Valuation τ sig (Elt F)) : after (opsFrom89 : List (HloOp τ sig (Elt F))) V = after opsFrom90 (after stepOps89 V) := after_append _ _ V
abbrev opsFrom88 : List (HloOp τ sig (Elt F)) := stepOps88 ++ opsFrom89
theorem opsFrom88_ok : (opsFrom88 : List (HloOp τ sig (Elt F))).Forall (OpOk 10) := List.forall_append.mpr ⟨stepOps88_ok, opsFrom89_ok⟩
theorem after_opsFrom88 (V : Valuation τ sig (Elt F)) : after (opsFrom88 : List (HloOp τ sig (Elt F))) V = after opsFrom89 (after stepOps88 V) := after_append _ _ V
abbrev opsFrom87 : List (HloOp τ sig (Elt F)) := stepOps87 ++ opsFrom88
theorem opsFrom87_ok : (opsFrom87 : List (HloOp τ sig (Elt F))).Forall (OpOk 10) := List.forall_append.mpr ⟨stepOps87_ok, opsFrom88_ok⟩
theorem after_opsFrom87 (V : Valuation τ sig (Elt F)) : after (opsFrom87 : List (HloOp τ sig (Elt F))) V = after opsFrom88 (after stepOps87 V) := after_append _ _ V
abbrev opsFrom86 : List (HloOp τ sig (Elt F)) := stepOps86 ++ opsFrom87
theorem opsFrom86_ok : (opsFrom86 : List (HloOp τ sig (Elt F))).Forall (OpOk 10) := List.forall_append.mpr ⟨stepOps86_ok, opsFrom87_ok⟩
theorem after_opsFrom86 (V : Valuation τ sig (Elt F)) : after (opsFrom86 : List (HloOp τ sig (Elt F))) V = after opsFrom87 (after stepOps86 V) := after_append _ _ V
abbrev opsFrom85 : List (HloOp τ sig (Elt F)) := stepOps85 ++ opsFrom86
theorem opsFrom85_ok : (opsFrom85 : List (HloOp τ sig (Elt F))).Forall (OpOk 10) := List.forall_append.mpr ⟨stepOps85_ok, opsFrom86_ok⟩
theorem after_opsFrom85 (V : Valuation τ sig (Elt F)) : after (opsFrom85 : List (HloOp τ sig (Elt F))) V = after opsFrom86 (after stepOps85 V) := after_append _ _ V
abbrev opsFrom84 : List (HloOp τ sig (Elt F)) := stepOps84 ++ opsFrom85
theorem opsFrom84_ok : (opsFrom84 : List (HloOp τ sig (Elt F))).Forall (OpOk 10) := List.forall_append.mpr ⟨stepOps84_ok, opsFrom85_ok⟩
theorem after_opsFrom84 (V : Valuation τ sig (Elt F)) : after (opsFrom84 : List (HloOp τ sig (Elt F))) V = after opsFrom85 (after stepOps84 V) := after_append _ _ V
abbrev opsFrom83 : List (HloOp τ sig (Elt F)) := stepOps83 ++ opsFrom84
theorem opsFrom83_ok : (opsFrom83 : List (HloOp τ sig (Elt F))).Forall (OpOk 10) := List.forall_append.mpr ⟨stepOps83_ok, opsFrom84_ok⟩
theorem after_opsFrom83 (V : Valuation τ sig (Elt F)) : after (opsFrom83 : List (HloOp τ sig (Elt F))) V = after opsFrom84 (after stepOps83 V) := after_append _ _ V
abbrev opsFrom82 : List (HloOp τ sig (Elt F)) := stepOps82 ++ opsFrom83
theorem opsFrom82_ok : (opsFrom82 : List (HloOp τ sig (Elt F))).Forall (OpOk 10) := List.forall_append.mpr ⟨stepOps82_ok, opsFrom83_ok⟩
theorem after_opsFrom82 (V : Valuation τ sig (Elt F)) : after (opsFrom82 : List (HloOp τ sig (Elt F))) V = after opsFrom83 (after stepOps82 V) := after_append _ _ V
abbrev opsFrom81 : List (HloOp τ sig (Elt F)) := stepOps81 ++ opsFrom82
theorem opsFrom81_ok : (opsFrom81 : List (HloOp τ sig (Elt F))).Forall (OpOk 10) := List.forall_append.mpr ⟨stepOps81_ok, opsFrom82_ok⟩
theorem after_opsFrom81 (V : Valuation τ sig (Elt F)) : after (opsFrom81 : List (HloOp τ sig (Elt F))) V = after opsFrom82 (after stepOps81 V) := after_append _ _ V
abbrev opsFrom80 : List (HloOp τ sig (Elt F)) := stepOps80 ++ opsFrom81
theorem opsFrom80_ok : (opsFrom80 : List (HloOp τ sig (Elt F))).Forall (OpOk 10) := List.forall_append.mpr ⟨stepOps80_ok, opsFrom81_ok⟩
theorem after_opsFrom80 (V : Valuation τ sig (Elt F)) : after (opsFrom80 : List (HloOp τ sig (Elt F))) V = after opsFrom81 (after stepOps80 V) := after_append _ _ V
abbrev opsFrom79 : List (HloOp τ sig (Elt F)) := stepOps79 ++ opsFrom80
theorem opsFrom79_ok : (opsFrom79 : List (HloOp τ sig (Elt F))).Forall (OpOk 10) := List.forall_append.mpr ⟨stepOps79_ok, opsFrom80_ok⟩
theorem after_opsFrom79 (V : Valuation τ sig (Elt F)) : after (opsFrom79 : List (HloOp τ sig (Elt F))) V = after opsFrom80 (after stepOps79 V) := after_append _ _ V
abbrev opsFrom78 : List (HloOp τ sig (Elt F)) := stepOps78 ++ opsFrom79
theorem opsFrom78_ok : (opsFrom78 : List (HloOp τ sig (Elt F))).Forall (OpOk 10) := List.forall_append.mpr ⟨stepOps78_ok, opsFrom79_ok⟩
theorem after_opsFrom78 (V : Valuation τ sig (Elt F)) : after (opsFrom78 : List (HloOp τ sig (Elt F))) V = after opsFrom79 (after stepOps78 V) := after_append _ _ V
abbrev opsFrom77 : List (HloOp τ sig (Elt F)) := stepOps77 ++ opsFrom78
theorem opsFrom77_ok : (opsFrom77 : List (HloOp τ sig (Elt F))).Forall (OpOk 10) := List.forall_append.mpr ⟨stepOps77_ok, opsFrom78_ok⟩
theorem after_opsFrom77 (V : Valuation τ sig (Elt F)) : after (opsFrom77 : List (HloOp τ sig (Elt F))) V = after opsFrom78 (after stepOps77 V) := after_append _ _ V
abbrev opsFrom76 : List (HloOp τ sig (Elt F)) := stepOps76 ++ opsFrom77
theorem opsFrom76_ok : (opsFrom76 : List (HloOp τ sig (Elt F))).Forall (OpOk 10) := List.forall_append.mpr ⟨stepOps76_ok, opsFrom77_ok⟩
theorem after_opsFrom76 (V : Valuation τ sig (Elt F)) : after (opsFrom76 : List (HloOp τ sig (Elt F))) V = after opsFrom77 (after stepOps76 V) := after_append _ _ V
abbrev opsFrom75 : List (HloOp τ sig (Elt F)) := stepOps75 ++ opsFrom76
theorem opsFrom75_ok : (opsFrom75 : List (HloOp τ sig (Elt F))).Forall (OpOk 10) := List.forall_append.mpr ⟨stepOps75_ok, opsFrom76_ok⟩
theorem after_opsFrom75 (V : Valuation τ sig (Elt F)) : after (opsFrom75 : List (HloOp τ sig (Elt F))) V = after opsFrom76 (after stepOps75 V) := after_append _ _ V
abbrev opsFrom74 : List (HloOp τ sig (Elt F)) := stepOps74 ++ opsFrom75
theorem opsFrom74_ok : (opsFrom74 : List (HloOp τ sig (Elt F))).Forall (OpOk 10) := List.forall_append.mpr ⟨stepOps74_ok, opsFrom75_ok⟩
theorem after_opsFrom74 (V : Valuation τ sig (Elt F)) : after (opsFrom74 : List (HloOp τ sig (Elt F))) V = after opsFrom75 (after stepOps74 V) := after_append _ _ V
abbrev opsFrom73 : List (HloOp τ sig (Elt F)) := stepOps73 ++ opsFrom74
theorem opsFrom73_ok : (opsFrom73 : List (HloOp τ sig (Elt F))).Forall (OpOk 10) := List.forall_append.mpr ⟨stepOps73_ok, opsFrom74_ok⟩
theorem after_opsFrom73 (V : Valuation τ sig (Elt F)) : after (opsFrom73 : List (HloOp τ sig (Elt F))) V = after opsFrom74 (after stepOps73 V) := after_append _ _ V
abbrev opsFrom72 : List (HloOp τ sig (Elt F)) := stepOps72 ++ opsFrom73
theorem opsFrom72_ok : (opsFrom72 : List (HloOp τ sig (Elt F))).Forall (OpOk 10) := List.forall_append.mpr ⟨stepOps72_ok, opsFrom73_ok⟩
theorem after_opsFrom72 (V : Valuation τ sig (Elt F)) : after (opsFrom72 : List (HloOp τ sig (Elt F))) V = after opsFrom73 (after stepOps72 V) := after_append _ _ V
abbrev opsFrom71 : List (HloOp τ sig (Elt F)) := stepOps71 ++ opsFrom72
theorem opsFrom71_ok : (opsFrom71 : List (HloOp τ sig (Elt F))).Forall (OpOk 10) := List.forall_append.mpr ⟨stepOps71_ok, opsFrom72_ok⟩
theorem after_opsFrom71 (V : Valuation τ sig (Elt F)) : after (opsFrom71 : List (HloOp τ sig (Elt F))) V = after opsFrom72 (after stepOps71 V) := after_append _ _ V
abbrev opsFrom70 : List (HloOp τ sig (Elt F)) := stepOps70 ++ opsFrom71
theorem opsFrom70_ok : (opsFrom70 : List (HloOp τ sig (Elt F))).Forall (OpOk 10) := List.forall_append.mpr ⟨stepOps70_ok, opsFrom71_ok⟩
theorem after_opsFrom70 (V : Valuation τ sig (Elt F)) : after (opsFrom70 : List (HloOp τ sig (Elt F))) V = after opsFrom71 (after stepOps70 V) := after_append _ _ V
abbrev opsFrom69 : List (HloOp τ sig (Elt F)) := stepOps69 ++ opsFrom70
theorem opsFrom69_ok : (opsFrom69 : List (HloOp τ sig (Elt F))).Forall (OpOk 10) := List.forall_append.mpr ⟨stepOps69_ok, opsFrom70_ok⟩
theorem after_opsFrom69 (V : Valuation τ sig (Elt F)) : after (opsFrom69 : List (HloOp τ sig (Elt F))) V = after opsFrom70 (after stepOps69 V) := after_append _ _ V
abbrev opsFrom68 : List (HloOp τ sig (Elt F)) := stepOps68 ++ opsFrom69
theorem opsFrom68_ok : (opsFrom68 : List (HloOp τ sig (Elt F))).Forall (OpOk 10) := List.forall_append.mpr ⟨stepOps68_ok, opsFrom69_ok⟩
theorem after_opsFrom68 (V : Valuation τ sig (Elt F)) : after (opsFrom68 : List (HloOp τ sig (Elt F))) V = after opsFrom69 (after stepOps68 V) := after_append _ _ V
abbrev opsFrom67 : List (HloOp τ sig (Elt F)) := stepOps67 ++ opsFrom68
theorem opsFrom67_ok : (opsFrom67 : List (HloOp τ sig (Elt F))).Forall (OpOk 10) := List.forall_append.mpr ⟨stepOps67_ok, opsFrom68_ok⟩
theorem after_opsFrom67 (V : Valuation τ sig (Elt F)) : after (opsFrom67 : List (HloOp τ sig (Elt F))) V = after opsFrom68 (after stepOps67 V) := after_append _ _ V
abbrev opsFrom66 : List (HloOp τ sig (Elt F)) := stepOps66 ++ opsFrom67
theorem opsFrom66_ok : (opsFrom66 : List (HloOp τ sig (Elt F))).Forall (OpOk 10) := List.forall_append.mpr ⟨stepOps66_ok, opsFrom67_ok⟩
theorem after_opsFrom66 (V : Valuation τ sig (Elt F)) : after (opsFrom66 : List (HloOp τ sig (Elt F))) V = after opsFrom67 (after stepOps66 V) := after_append _ _ V
abbrev opsFrom65 : List (HloOp τ sig (Elt F)) := stepOps65 ++ opsFrom66
theorem opsFrom65_ok : (opsFrom65 : List (HloOp τ sig (Elt F))).Forall (OpOk 10) := List.forall_append.mpr ⟨stepOps65_ok, opsFrom66_ok⟩
theorem after_opsFrom65 (V : Valuation τ sig (Elt F)) : after (opsFrom65 : List (HloOp τ sig (Elt F))) V = after opsFrom66 (after stepOps65 V) := after_append _ _ V
abbrev opsFrom64 : List (HloOp τ sig (Elt F)) := stepOps64 ++ opsFrom65
theorem opsFrom64_ok : (opsFrom64 : List (HloOp τ sig (Elt F))).Forall (OpOk 10) := List.forall_append.mpr ⟨stepOps64_ok, opsFrom65_ok⟩
theorem after_opsFrom64 (V : Valuation τ sig (Elt F)) : after (opsFrom64 : List (HloOp τ sig (Elt F))) V = after opsFrom65 (after stepOps64 V) := after_append _ _ V
abbrev opsFrom63 : List (HloOp τ sig (Elt F)) := stepOps63 ++ opsFrom64
theorem opsFrom63_ok : (opsFrom63 : List (HloOp τ sig (Elt F))).Forall (OpOk 10) := List.forall_append.mpr ⟨stepOps63_ok, opsFrom64_ok⟩
theorem after_opsFrom63 (V : Valuation τ sig (Elt F)) : after (opsFrom63 : List (HloOp τ sig (Elt F))) V = after opsFrom64 (after stepOps63 V) := after_append _ _ V
abbrev opsFrom62 : List (HloOp τ sig (Elt F)) := stepOps62 ++ opsFrom63
theorem opsFrom62_ok : (opsFrom62 : List (HloOp τ sig (Elt F))).Forall (OpOk 10) := List.forall_append.mpr ⟨stepOps62_ok, opsFrom63_ok⟩
theorem after_opsFrom62 (V : Valuation τ sig (Elt F)) : after (opsFrom62 : List (HloOp τ sig (Elt F))) V = after opsFrom63 (after stepOps62 V) := after_append _ _ V
abbrev opsFrom61 : List (HloOp τ sig (Elt F)) := stepOps61 ++ opsFrom62
theorem opsFrom61_ok : (opsFrom61 : List (HloOp τ sig (Elt F))).Forall (OpOk 10) := List.forall_append.mpr ⟨stepOps61_ok, opsFrom62_ok⟩
theorem after_opsFrom61 (V : Valuation τ sig (Elt F)) : after (opsFrom61 : List (HloOp τ sig (Elt F))) V = after opsFrom62 (after stepOps61 V) := after_append _ _ V
abbrev opsFrom60 : List (HloOp τ sig (Elt F)) := stepOps60 ++ opsFrom61
theorem opsFrom60_ok : (opsFrom60 : List (HloOp τ sig (Elt F))).Forall (OpOk 10) := List.forall_append.mpr ⟨stepOps60_ok, opsFrom61_ok⟩
theorem after_opsFrom60 (V : Valuation τ sig (Elt F)) : after (opsFrom60 : List (HloOp τ sig (Elt F))) V = after opsFrom61 (after stepOps60 V) := after_append _ _ V
abbrev opsFrom59 : List (HloOp τ sig (Elt F)) := stepOps59 ++ opsFrom60
theorem opsFrom59_ok : (opsFrom59 : List (HloOp τ sig (Elt F))).Forall (OpOk 10) := List.forall_append.mpr ⟨stepOps59_ok, opsFrom60_ok⟩
theorem after_opsFrom59 (V : Valuation τ sig (Elt F)) : after (opsFrom59 : List (HloOp τ sig (Elt F))) V = after opsFrom60 (after stepOps59 V) := after_append _ _ V
abbrev opsFrom58 : List (HloOp τ sig (Elt F)) := stepOps58 ++ opsFrom59
theorem opsFrom58_ok : (opsFrom58 : List (HloOp τ sig (Elt F))).Forall (OpOk 10) := List.forall_append.mpr ⟨stepOps58_ok, opsFrom59_ok⟩
theorem after_opsFrom58 (V : Valuation τ sig (Elt F)) : after (opsFrom58 : List (HloOp τ sig (Elt F))) V = after opsFrom59 (after stepOps58 V) := after_append _ _ V
abbrev opsFrom57 : List (HloOp τ sig (Elt F)) := stepOps57 ++ opsFrom58
theorem opsFrom57_ok : (opsFrom57 : List (HloOp τ sig (Elt F))).Forall (OpOk 10) := List.forall_append.mpr ⟨stepOps57_ok, opsFrom58_ok⟩
theorem after_opsFrom57 (V : Valuation τ sig (Elt F)) : after (opsFrom57 : List (HloOp τ sig (Elt F))) V = after opsFrom58 (after stepOps57 V) := after_append _ _ V
abbrev opsFrom56 : List (HloOp τ sig (Elt F)) := stepOps56 ++ opsFrom57
theorem opsFrom56_ok : (opsFrom56 : List (HloOp τ sig (Elt F))).Forall (OpOk 10) := List.forall_append.mpr ⟨stepOps56_ok, opsFrom57_ok⟩
theorem after_opsFrom56 (V : Valuation τ sig (Elt F)) : after (opsFrom56 : List (HloOp τ sig (Elt F))) V = after opsFrom57 (after stepOps56 V) := after_append _ _ V
abbrev opsFrom55 : List (HloOp τ sig (Elt F)) := stepOps55 ++ opsFrom56
theorem opsFrom55_ok : (opsFrom55 : List (HloOp τ sig (Elt F))).Forall (OpOk 10) := List.forall_append.mpr ⟨stepOps55_ok, opsFrom56_ok⟩
theorem after_opsFrom55 (V : Valuation τ sig (Elt F)) : after (opsFrom55 : List (HloOp τ sig (Elt F))) V = after opsFrom56 (after stepOps55 V) := after_append _ _ V
abbrev opsFrom54 : List (HloOp τ sig (Elt F)) := stepOps54 ++ opsFrom55
theorem opsFrom54_ok : (opsFrom54 : List (HloOp τ sig (Elt F))).Forall (OpOk 10) := List.forall_append.mpr ⟨stepOps54_ok, opsFrom55_ok⟩
theorem after_opsFrom54 (V : Valuation τ sig (Elt F)) : after (opsFrom54 : List (HloOp τ sig (Elt F))) V = after opsFrom55 (after stepOps54 V) := after_append _ _ V
abbrev opsFrom53 : List (HloOp τ sig (Elt F)) := stepOps53 ++ opsFrom54
theorem opsFrom53_ok : (opsFrom53 : List (HloOp τ sig (Elt F))).Forall (OpOk 10) := List.forall_append.mpr ⟨stepOps53_ok, opsFrom54_ok⟩
theorem after_opsFrom53 (V : Valuation τ sig (Elt F)) : after (opsFrom53 : List (HloOp τ sig (Elt F))) V = after opsFrom54 (after stepOps53 V) := after_append _ _ V
abbrev opsFrom52 : List (HloOp τ sig (Elt F)) := stepOps52 ++ opsFrom53
theorem opsFrom52_ok : (opsFrom52 : List (HloOp τ sig (Elt F))).Forall (OpOk 10) := List.forall_append.mpr ⟨stepOps52_ok, opsFrom53_ok⟩
theorem after_opsFrom52 (V : Valuation τ sig (Elt F)) : after (opsFrom52 : List (HloOp τ sig (Elt F))) V = after opsFrom53 (after stepOps52 V) := after_append _ _ V
abbrev opsFrom51 : List (HloOp τ sig (Elt F)) := stepOps51 ++ opsFrom52
theorem opsFrom51_ok : (opsFrom51 : List (HloOp τ sig (Elt F))).Forall (OpOk 10) := List.forall_append.mpr ⟨stepOps51_ok, opsFrom52_ok⟩
theorem after_opsFrom51 (V : Valuation τ sig (Elt F)) : after (opsFrom51 : List (HloOp τ sig (Elt F))) V = after opsFrom52 (after stepOps51 V) := after_append _ _ V
abbrev opsFrom50 : List (HloOp τ sig (Elt F)) := stepOps50 ++ opsFrom51
theorem opsFrom50_ok : (opsFrom50 : List (HloOp τ sig (Elt F))).Forall (OpOk 10) := List.forall_append.mpr ⟨stepOps50_ok, opsFrom51_ok⟩
theorem after_opsFrom50 (V : Valuation τ sig (Elt F)) : after (opsFrom50 : List (HloOp τ sig (Elt F))) V = after opsFrom51 (after stepOps50 V) := after_append _ _ V
abbrev opsFrom49 : List (HloOp τ sig (Elt F)) := stepOps49 ++ opsFrom50
theorem opsFrom49_ok : (opsFrom49 : List (HloOp τ sig (Elt F))).Forall (OpOk 10) := List.forall_append.mpr ⟨stepOps49_ok, opsFrom50_ok⟩
theorem after_opsFrom49 (V : Valuation τ sig (Elt F)) : after (opsFrom49 : List (HloOp τ sig (Elt F))) V = after opsFrom50 (after stepOps49 V) := after_append _ _ V
abbrev opsFrom48 : List (HloOp τ sig (Elt F)) := stepOps48 ++ opsFrom49
theorem opsFrom48_ok : (opsFrom48 : List (HloOp τ sig (Elt F))).Forall (OpOk 10) := List.forall_append.mpr ⟨stepOps48_ok, opsFrom49_ok⟩
theorem after_opsFrom48 (V : Valuation τ sig (Elt F)) : after (opsFrom48 : List (HloOp τ sig (Elt F))) V = after opsFrom49 (after stepOps48 V) := after_append _ _ V
abbrev opsFrom47 : List (HloOp τ sig (Elt F)) := stepOps47 ++ opsFrom48
theorem opsFrom47_ok : (opsFrom47 : List (HloOp τ sig (Elt F))).Forall (OpOk 10) := List.forall_append.mpr ⟨stepOps47_ok, opsFrom48_ok⟩
theorem after_opsFrom47 (V : Valuation τ sig (Elt F)) : after (opsFrom47 : List (HloOp τ sig (Elt F))) V = after opsFrom48 (after stepOps47 V) := after_append _ _ V
abbrev opsFrom46 : List (HloOp τ sig (Elt F)) := stepOps46 ++ opsFrom47
theorem opsFrom46_ok : (opsFrom46 : List (HloOp τ sig (Elt F))).Forall (OpOk 10) := List.forall_append.mpr ⟨stepOps46_ok, opsFrom47_ok⟩
theorem after_opsFrom46 (V : Valuation τ sig (Elt F)) : after (opsFrom46 : List (HloOp τ sig (Elt F))) V = after opsFrom47 (after stepOps46 V) := after_append _ _ V
abbrev opsFrom45 : List (HloOp τ sig (Elt F)) := stepOps45 ++ opsFrom46
theorem opsFrom45_ok : (opsFrom45 : List (HloOp τ sig (Elt F))).Forall (OpOk 10) := List.forall_append.mpr ⟨stepOps45_ok, opsFrom46_ok⟩
theorem after_opsFrom45 (V : Valuation τ sig (Elt F)) : after (opsFrom45 : List (HloOp τ sig (Elt F))) V = after opsFrom46 (after stepOps45 V) := after_append _ _ V
abbrev opsFrom44 : List (HloOp τ sig (Elt F)) := stepOps44 ++ opsFrom45
theorem opsFrom44_ok : (opsFrom44 : List (HloOp τ sig (Elt F))).Forall (OpOk 10) := List.forall_append.mpr ⟨stepOps44_ok, opsFrom45_ok⟩
theorem after_opsFrom44 (V : Valuation τ sig (Elt F)) : after (opsFrom44 : List (HloOp τ sig (Elt F))) V = after opsFrom45 (after stepOps44 V) := after_append _ _ V
abbrev opsFrom43 : List (HloOp τ sig (Elt F)) := stepOps43 ++ opsFrom44
theorem opsFrom43_ok : (opsFrom43 : List (HloOp τ sig (Elt F))).Forall (OpOk 10) := List.forall_append.mpr ⟨stepOps43_ok, opsFrom44_ok⟩
theorem after_opsFrom43 (V : Valuation τ sig (Elt F)) : after (opsFrom43 : List (HloOp τ sig (Elt F))) V = after opsFrom44 (after stepOps43 V) := after_append _ _ V
abbrev opsFrom42 : List (HloOp τ sig (Elt F)) := stepOps42 ++ opsFrom43
theorem opsFrom42_ok : (opsFrom42 : List (HloOp τ sig (Elt F))).Forall (OpOk 10) := List.forall_append.mpr ⟨stepOps42_ok, opsFrom43_ok⟩
theorem after_opsFrom42 (V : Valuation τ sig (Elt F)) : after (opsFrom42 : List (HloOp τ sig (Elt F))) V = after opsFrom43 (after stepOps42 V) := after_append _ _ V
abbrev opsFrom41 : List (HloOp τ sig (Elt F)) := stepOps41 ++ opsFrom42
theorem opsFrom41_ok : (opsFrom41 : List (HloOp τ sig (Elt F))).Forall (OpOk 10) := List.forall_append.mpr ⟨stepOps41_ok, opsFrom42_ok⟩
theorem after_opsFrom41 (V : Valuation τ sig (Elt F)) : after (opsFrom41 : List (HloOp τ sig (Elt F))) V = after opsFrom42 (after stepOps41 V) := after_append _ _ V
abbrev opsFrom40 : List (HloOp τ sig (Elt F)) := stepOps40 ++ opsFrom41
theorem opsFrom40_ok : (opsFrom40 : List (HloOp τ sig (Elt F))).Forall (OpOk 10) := List.forall_append.mpr ⟨stepOps40_ok, opsFrom41_ok⟩
theorem after_opsFrom40 (V : Valuation τ sig (Elt F)) : after (opsFrom40 : List (HloOp τ sig (Elt F))) V = after opsFrom41 (after stepOps40 V) := after_append _ _ V
abbrev opsFrom39 : List (HloOp τ sig (Elt F)) := stepOps39 ++ opsFrom40
theorem opsFrom39_ok : (opsFrom39 : List (HloOp τ sig (Elt F))).Forall (OpOk 10) := List.forall_append.mpr ⟨stepOps39_ok, opsFrom40_ok⟩
theorem after_opsFrom39 (V : Valuation τ sig (Elt F)) : after (opsFrom39 : List (HloOp τ sig (Elt F))) V = after opsFrom40 (after stepOps39 V) := after_append _ _ V
abbrev opsFrom38 : List (HloOp τ sig (Elt F)) := stepOps38 ++ opsFrom39
theorem opsFrom38_ok : (opsFrom38 : List (HloOp τ sig (Elt F))).Forall (OpOk 10) := List.forall_append.mpr ⟨stepOps38_ok, opsFrom39_ok⟩
theorem after_opsFrom38 (V : Valuation τ sig (Elt F)) : after (opsFrom38 : List (HloOp τ sig (Elt F))) V = after opsFrom39 (after stepOps38 V) := after_append _ _ V
abbrev opsFrom37 : List (HloOp τ sig (Elt F)) := stepOps37 ++ opsFrom38
theorem opsFrom37_ok : (opsFrom37 : List (HloOp τ sig (Elt F))).Forall (OpOk 10) := List.forall_append.mpr ⟨stepOps37_ok, opsFrom38_ok⟩
theorem after_opsFrom37 (V : Valuation τ sig (Elt F)) : after (opsFrom37 : List (HloOp τ sig (Elt F))) V = after opsFrom38 (after stepOps37 V) := after_append _ _ V
abbrev opsFrom36 : List (HloOp τ sig (Elt F)) := stepOps36 ++ opsFrom37
theorem opsFrom36_ok : (opsFrom36 : List (HloOp τ sig (Elt F))).Forall (OpOk 10) := List.forall_append.mpr ⟨stepOps36_ok, opsFrom37_ok⟩
theorem after_opsFrom36 (V : Valuation τ sig (Elt F)) : after (opsFrom36 : List (HloOp τ sig (Elt F))) V = after opsFrom37 (after stepOps36 V) := after_append _ _ V
abbrev opsFrom35 : List (HloOp τ sig (Elt F)) := stepOps35 ++ opsFrom36
theorem opsFrom35_ok : (opsFrom35 : List (HloOp τ sig (Elt F))).Forall (OpOk 10) := List.forall_append.mpr ⟨stepOps35_ok, opsFrom36_ok⟩
theorem after_opsFrom35 (V : Valuation τ sig (Elt F)) : after (opsFrom35 : List (HloOp τ sig (Elt F))) V = after opsFrom36 (after stepOps35 V) := after_append _ _ V
abbrev opsFrom34 : List (HloOp τ sig (Elt F)) := stepOps34 ++ opsFrom35
theorem opsFrom34_ok : (opsFrom34 : List (HloOp τ sig (Elt F))).Forall (OpOk 10) := List.forall_append.mpr ⟨stepOps34_ok, opsFrom35_ok⟩
theorem after_opsFrom34 (V : Valuation τ sig (Elt F)) : after (opsFrom34 : List (HloOp τ sig (Elt F))) V = after opsFrom35 (after stepOps34 V) := after_append _ _ V
abbrev opsFrom33 : List (HloOp τ sig (Elt F)) := stepOps33 ++ opsFrom34
theorem opsFrom33_ok : (opsFrom33 : List (HloOp τ sig (Elt F))).Forall (OpOk 10) := List.forall_append.mpr ⟨stepOps33_ok, opsFrom34_ok⟩
theorem after_opsFrom33 (V : Valuation τ sig (Elt F)) : after (opsFrom33 : List (HloOp τ sig (Elt F))) V = after opsFrom34 (after stepOps33 V) := after_append _ _ V
abbrev opsFrom32 : List (HloOp τ sig (Elt F)) := stepOps32 ++ opsFrom33
theorem opsFrom32_ok : (opsFrom32 : List (HloOp τ sig (Elt F))).Forall (OpOk 10) := List.forall_append.mpr ⟨stepOps32_ok, opsFrom33_ok⟩
theorem after_opsFrom32 (V : Valuation τ sig (Elt F)) : after (opsFrom32 : List (HloOp τ sig (Elt F))) V = after opsFrom33 (after stepOps32 V) := after_append _ _ V
abbrev opsFrom31 : List (HloOp τ sig (Elt F)) := stepOps31 ++ opsFrom32
theorem opsFrom31_ok : (opsFrom31 : List (HloOp τ sig (Elt F))).Forall (OpOk 10) := List.forall_append.mpr ⟨stepOps31_ok, opsFrom32_ok⟩
theorem after_opsFrom31 (V : Valuation τ sig (Elt F)) : after (opsFrom31 : List (HloOp τ sig (Elt F))) V = after opsFrom32 (after stepOps31 V) := after_append _ _ V
abbrev opsFrom30 : List (HloOp τ sig (Elt F)) := stepOps30 ++ opsFrom31
theorem opsFrom30_ok : (opsFrom30 : List (HloOp τ sig (Elt F))).Forall (OpOk 10) := List.forall_append.mpr ⟨stepOps30_ok, opsFrom31_ok⟩
theorem after_opsFrom30 (V : Valuation τ sig (Elt F)) : after (opsFrom30 : List (HloOp τ sig (Elt F))) V = after opsFrom31 (after stepOps30 V) := after_append _ _ V
abbrev opsFrom29 : List (HloOp τ sig (Elt F)) := stepOps29 ++ opsFrom30
theorem opsFrom29_ok : (opsFrom29 : List (HloOp τ sig (Elt F))).Forall (OpOk 10) := List.forall_append.mpr ⟨stepOps29_ok, opsFrom30_ok⟩
theorem after_opsFrom29 (V : Valuation τ sig (Elt F)) : after (opsFrom29 : List (HloOp τ sig (Elt F))) V = after opsFrom30 (after stepOps29 V) := after_append _ _ V
abbrev opsFrom28 : List (HloOp τ sig (Elt F)) := stepOps28 ++ opsFrom29
theorem opsFrom28_ok : (opsFrom28 : List (HloOp τ sig (Elt F))).Forall (OpOk 10) := List.forall_append.mpr ⟨stepOps28_ok, opsFrom29_ok⟩
theorem after_opsFrom28 (V : Valuation τ sig (Elt F)) : after (opsFrom28 : List (HloOp τ sig (Elt F))) V = after opsFrom29 (after stepOps28 V) := after_append _ _ V
abbrev opsFrom27 : List (HloOp τ sig (Elt F)) := stepOps27 ++ opsFrom28
theorem opsFrom27_ok : (opsFrom27 : List (HloOp τ sig (Elt F))).Forall (OpOk 10) := List.forall_append.mpr ⟨stepOps27_ok, opsFrom28_ok⟩
theorem after_opsFrom27 (V : Valuation τ sig (Elt F)) : after (opsFrom27 : List (HloOp τ sig (Elt F))) V = after opsFrom28 (after stepOps27 V) := after_append _ _ V
abbrev opsFrom26 : List (HloOp τ sig (Elt F)) := stepOps26 ++ opsFrom27
theorem opsFrom26_ok : (opsFrom26 : List (HloOp τ sig (Elt F))).Forall (OpOk 10) := List.forall_append.mpr ⟨stepOps26_ok, opsFrom27_ok⟩
theorem after_opsFrom26 (V : Valuation τ sig (Elt F)) : after (opsFrom26 : List (HloOp τ sig (Elt F))) V = after opsFrom27 (after stepOps26 V) := after_append _ _ V
abbrev opsFrom25 : List (HloOp τ sig (Elt F)) := stepOps25 ++ opsFrom26
theorem opsFrom25_ok : (opsFrom25 : List (HloOp τ sig (Elt F))).Forall (OpOk 10) := List.forall_append.mpr ⟨stepOps25_ok, opsFrom26_ok⟩
theorem after_opsFrom25 (V : Valuation τ sig (Elt F)) : after (opsFrom25 : List (HloOp τ sig (Elt F))) V = after opsFrom26 (after stepOps25 V) := after_append _ _ V
abbrev opsFrom24 : List (HloOp τ sig (Elt F)) := stepOps24 ++ opsFrom25
theorem opsFrom24_ok : (opsFrom24 : List (HloOp τ sig (Elt F))).Forall (OpOk 10) := List.forall_append.mpr ⟨stepOps24_ok, opsFrom25_ok⟩
theorem after_opsFrom24 (V : Valuation τ sig (Elt F)) : after (opsFrom24 : List (HloOp τ sig (Elt F))) V = after opsFrom25 (after stepOps24 V) := after_append _ _ V
abbrev opsFrom23 : List (HloOp τ sig (Elt F)) := stepOps23 ++ opsFrom24
theorem opsFrom23_ok : (opsFrom23 : List (HloOp τ sig (Elt F))).Forall (OpOk 10) := List.forall_append.mpr ⟨stepOps23_ok, opsFrom24_ok⟩
theorem after_opsFrom23 (V : Valuation τ sig (Elt F)) : after (opsFrom23 : List (HloOp τ sig (Elt F))) V = after opsFrom24 (after stepOps23 V) := after_append _ _ V
abbrev opsFrom22 : List (HloOp τ sig (Elt F)) := stepOps22 ++ opsFrom23
theorem opsFrom22_ok : (opsFrom22 : List (HloOp τ sig (Elt F))).Forall (OpOk 10) := List.forall_append.mpr ⟨stepOps22_ok, opsFrom23_ok⟩
theorem after_opsFrom22 (V : Valuation τ sig (Elt F)) : after (opsFrom22 : List (HloOp τ sig (Elt F))) V = after opsFrom23 (after stepOps22 V) := after_append _ _ V
abbrev opsFrom21 : List (HloOp τ sig (Elt F)) := stepOps21 ++ opsFrom22
theorem opsFrom21_ok : (opsFrom21 : List (HloOp τ sig (Elt F))).Forall (OpOk 10) := List.forall_append.mpr ⟨stepOps21_ok, opsFrom22_ok⟩
theorem after_opsFrom21 (V : Valuation τ sig (Elt F)) : after (opsFrom21 : List (HloOp τ sig (Elt F))) V = after opsFrom22 (after stepOps21 V) := after_append _ _ V
abbrev opsFrom20 : List (HloOp τ sig (Elt F)) := stepOps20 ++ opsFrom21
theorem opsFrom20_ok : (opsFrom20 : List (HloOp τ sig (Elt F))).Forall (OpOk 10) := List.forall_append.mpr ⟨stepOps20_ok, opsFrom21_ok⟩
theorem after_opsFrom20 (V : Valuation τ sig (Elt F)) : after (opsFrom20 : List (HloOp τ sig (Elt F))) V = after opsFrom21 (after stepOps20 V) := after_append _ _ V
abbrev opsFrom19 : List (HloOp τ sig (Elt F)) := stepOps19 ++ opsFrom20
theorem opsFrom19_ok : (opsFrom19 : List (HloOp τ sig (Elt F))).Forall (OpOk 10) := List.forall_append.mpr ⟨stepOps19_ok, opsFrom20_ok⟩
theorem after_opsFrom19 (V : Valuation τ sig (Elt F)) : after (opsFrom19 : List (HloOp τ sig (Elt F))) V = after opsFrom20 (after stepOps19 V) := after_append _ _ V
abbrev opsFrom18 : List (HloOp τ sig (Elt F)) := stepOps18 ++ opsFrom19
theorem opsFrom18_ok : (opsFrom18 : List (HloOp τ sig (Elt F))).Forall (OpOk 10) := List.forall_append.mpr ⟨stepOps18_ok, opsFrom19_ok⟩
theorem after_opsFrom18 (V : Valuation τ sig (Elt F)) : after (opsFrom18 : List (HloOp τ sig (Elt F))) V = after opsFrom19 (after stepOps18 V) := after_append _ _ V
abbrev opsFrom17 : List (HloOp τ sig (Elt F)) := stepOps17 ++ opsFrom18
theorem opsFrom17_ok : (opsFrom17 : List (HloOp τ sig (Elt F))).Forall (OpOk 10) := List.forall_append.mpr ⟨stepOps17_ok, opsFrom18_ok⟩
theorem after_opsFrom17 (V : Valuation τ sig (Elt F)) : after (opsFrom17 : List (HloOp τ sig (Elt F))) V = after opsFrom18 (after stepOps17 V) := after_append _ _ V
abbrev opsFrom16 : List (HloOp τ sig (Elt F)) := stepOps16 ++ opsFrom17
theorem opsFrom16_ok : (opsFrom16 : List (HloOp τ sig (Elt F))).Forall (OpOk 10) := List.forall_append.mpr ⟨stepOps16_ok, opsFrom17_ok⟩
theorem after_opsFrom16 (V : Valuation τ sig (Elt F)) : after (opsFrom16 : List (HloOp τ sig (Elt F))) V = after opsFrom17 (after stepOps16 V) := after_append _ _ V
abbrev opsFrom15 : List (HloOp τ sig (Elt F)) := stepOps15 ++ opsFrom16
theorem opsFrom15_ok : (opsFrom15 : List (HloOp τ sig (Elt F))).Forall (OpOk 10) := List.forall_append.mpr ⟨stepOps15_ok, opsFrom16_ok⟩
theorem after_opsFrom15 (V : Valuation τ sig (Elt F)) : after (opsFrom15 : List (HloOp τ sig (Elt F))) V = after opsFrom16 (after stepOps15 V) := after_append _ _ V
abbrev opsFrom14 : List (HloOp τ sig (Elt F)) := stepOps14 ++ opsFrom15
theorem opsFrom14_ok : (opsFrom14 : List (HloOp τ sig (Elt F))).Forall (OpOk 10) := List.forall_append.mpr ⟨stepOps14_ok, opsFrom15_ok⟩
theorem after_opsFrom14 (V : Valuation τ sig (Elt F)) : after (opsFrom14 : List (HloOp τ sig (Elt F))) V = after opsFrom15 (after stepOps14 V) := after_append _ _ V
abbrev opsFrom13 : List (HloOp τ sig (Elt F)) := stepOps13 ++ opsFrom14
theorem opsFrom13_ok : (opsFrom13 : List (HloOp τ sig (Elt F))).Forall (OpOk 10) := List.forall_append.mpr ⟨stepOps13_ok, opsFrom14_ok⟩
theorem after_opsFrom13 (V : Valuation τ sig (Elt F)) : after (opsFrom13 : List (HloOp τ sig (Elt F))) V = after opsFrom14 (after stepOps13 V) := after_append _ _ V
abbrev opsFrom12 : List (HloOp τ sig (Elt F)) := stepOps12 ++ opsFrom13
theorem opsFrom12_ok : (opsFrom12 : List (HloOp τ sig (Elt F))).Forall (OpOk 10) := List.forall_append.mpr ⟨stepOps12_ok, opsFrom13_ok⟩
theorem after_opsFrom12 (V : Valuation τ sig (Elt F)) : after (opsFrom12 : List (HloOp τ sig (Elt F))) V = after opsFrom13 (after stepOps12 V) := after_append _ _ V
abbrev opsFrom11 : List (HloOp τ sig (Elt F)) := stepOps11 ++ opsFrom12
theorem opsFrom11_ok : (opsFrom11 : List (HloOp τ sig (Elt F))).Forall (OpOk 10) := List.forall_append.mpr ⟨stepOps11_ok, opsFrom12_ok⟩
theorem after_opsFrom11 (V : Valuation τ sig (Elt F)) : after (opsFrom11 : List (HloOp τ sig (Elt F))) V = after opsFrom12 (after stepOps11 V) := after_append _ _ V
abbrev opsFrom10 : List (HloOp τ sig (Elt F)) := stepOps10 ++ opsFrom11
theorem opsFrom10_ok : (opsFrom10 : List (HloOp τ sig (Elt F))).Forall (OpOk 10) := List.forall_append.mpr ⟨stepOps10_ok, opsFrom11_ok⟩
theorem after_opsFrom10 (V : Valuation τ sig (Elt F)) : after (opsFrom10 : List (HloOp τ sig (Elt F))) V = after opsFrom11 (after stepOps10 V) := after_append _ _ V
abbrev opsFrom9 : List (HloOp τ sig (Elt F)) := stepOps9 ++ opsFrom10
theorem opsFrom9_ok : (opsFrom9 : List (HloOp τ sig (Elt F))).Forall (OpOk 10) := List.forall_append.mpr ⟨stepOps9_ok, opsFrom10_ok⟩
theorem after_opsFrom9 (V : Valuation τ sig (Elt F)) : after (opsFrom9 : List (HloOp τ sig (Elt F))) V = after opsFrom10 (after stepOps9 V) := after_append _ _ V
abbrev opsFrom8 : List (HloOp τ sig (Elt F)) := stepOps8 ++ opsFrom9
theorem opsFrom8_ok : (opsFrom8 : List (HloOp τ sig (Elt F))).Forall (OpOk 10) := List.forall_append.mpr ⟨stepOps8_ok, opsFrom9_ok⟩
theorem after_opsFrom8 (V : Valuation τ sig (Elt F)) : after (opsFrom8 : List (HloOp τ sig (Elt F))) V = after opsFrom9 (after stepOps8 V) := after_append _ _ V
abbrev opsFrom7 : List (HloOp τ sig (Elt F)) := stepOps7 ++ opsFrom8
theorem opsFrom7_ok : (opsFrom7 : List (HloOp τ sig (Elt F))).Forall (OpOk 10) := List.forall_append.mpr ⟨stepOps7_ok, opsFrom8_ok⟩
theorem after_opsFrom7 (V : Valuation τ sig (Elt F)) : after (opsFrom7 : List (HloOp τ sig (Elt F))) V = after opsFrom8 (after stepOps7 V) := after_append _ _ V
abbrev opsFrom6 : List (HloOp τ sig (Elt F)) := stepOps6 ++ opsFrom7
theorem opsFrom6_ok : (opsFrom6 : List (HloOp τ sig (Elt F))).Forall (OpOk 10) := List.forall_append.mpr ⟨stepOps6_ok, opsFrom7_ok⟩
theorem after_opsFrom6 (V : Valuation τ sig (Elt F)) : after (opsFrom6 : List (HloOp τ sig (Elt F))) V = after opsFrom7 (after stepOps6 V) := after_append _ _ V
abbrev opsFrom5 : List (HloOp τ sig (Elt F)) := stepOps5 ++ opsFrom6
theorem opsFrom5_ok : (opsFrom5 : List (HloOp τ sig (Elt F))).Forall (OpOk 10) := List.forall_append.mpr ⟨stepOps5_ok, opsFrom6_ok⟩
theorem after_opsFrom5 (V : Valuation τ sig (Elt F)) : after (opsFrom5 : List (HloOp τ sig (Elt F))) V = after opsFrom6 (after stepOps5 V) := after_append _ _ V
abbrev opsFrom4 : List (HloOp τ sig (Elt F)) := stepOps4 ++ opsFrom5
theorem opsFrom4_ok : (opsFrom4 : List (HloOp τ sig (Elt F))).Forall (OpOk 10) := List.forall_append.mpr ⟨stepOps4_ok, opsFrom5_ok⟩
theorem after_opsFrom4 (V : Valuation τ sig (Elt F)) : after (opsFrom4 : List (HloOp τ sig (Elt F))) V = after opsFrom5 (after stepOps4 V) := after_append _ _ V
abbrev opsFrom3 : List (HloOp τ sig (Elt F)) := stepOps3 ++ opsFrom4
theorem opsFrom3_ok : (opsFrom3 : List (HloOp τ sig (Elt F))).Forall (OpOk 10) := List.forall_append.mpr ⟨stepOps3_ok, opsFrom4_ok⟩
theorem after_opsFrom3 (V : Valuation τ sig (Elt F)) : after (opsFrom3 : List (HloOp τ sig (Elt F))) V = after opsFrom4 (after stepOps3 V) := after_append _ _ V
abbrev opsFrom2 : List (HloOp τ sig (Elt F)) := stepOps2 ++ opsFrom3
theorem opsFrom2_ok : (opsFrom2 : List (HloOp τ sig (Elt F))).Forall (OpOk 10) := List.forall_append.mpr ⟨stepOps2_ok, opsFrom3_ok⟩
theorem after_opsFrom2 (V : Valuation τ sig (Elt F)) : after (opsFrom2 : List (HloOp τ sig (Elt F))) V = after opsFrom3 (after stepOps2 V) := after_append _ _ V
abbrev opsFrom1 : List (HloOp τ sig (Elt F)) := stepOps1 ++ opsFrom2
theorem opsFrom1_ok : (opsFrom1 : List (HloOp τ sig (Elt F))).Forall (OpOk 10) := List.forall_append.mpr ⟨stepOps1_ok, opsFrom2_ok⟩
theorem after_opsFrom1 (V : Valuation τ sig (Elt F)) : after (opsFrom1 : List (HloOp τ sig (Elt F))) V = after opsFrom2 (after stepOps1 V) := after_append _ _ V
abbrev opsFrom0 : List (HloOp τ sig (Elt F)) := stepOps0 ++ opsFrom1
theorem opsFrom0_ok : (opsFrom0 : List (HloOp τ sig (Elt F))).Forall (OpOk 10) := List.forall_append.mpr ⟨stepOps0_ok, opsFrom1_ok⟩
theorem after_opsFrom0 (V : Valuation τ sig (Elt F)) : after (opsFrom0 : List (HloOp τ sig (Elt F))) V = after opsFrom1 (after stepOps0 V) := after_append _ _ V

/-- The reference's operations, in order: the six before the loop, then the steps. -/
abbrev ops : List (HloOp τ sig (Elt F)) := preOps ++ opsFrom0
theorem ops_ok : (ops : List (HloOp τ sig (Elt F))).Forall (OpOk 4) :=
  List.forall_append.mpr ⟨preOps_ok, opsFrom0_ok.imp fun _ h => h.mono (by decide)⟩
theorem ops_sub : (ops : List (HloOp τ sig (Elt F))).Forall fun op => op.bufs ⊆ tcRefs τ sig := ops_ok.imp fun _ h => h.1
theorem ops_fresh : ∀ op ∈ (ops : List (HloOp τ sig (Elt F))), op.fresh = ∅ := fun op h => (List.forall_iff_forall_mem.mp ops_ok op h).2.2
theorem after_ops (V : Valuation τ sig (Elt F)) : after (ops : List (HloOp τ sig (Elt F))) V = after opsFrom0 (after preOps V) := after_append _ _ V

end Cert.ReferenceIdeal.RefRun

end
-- ==== Proof.RefProgTail.lean ====
/-
  The printed @main as its windows one after the other, named from the last one back: tailProg K is window K followed by the rest.
-/
import proofs.«900482_g7700000000000483_dist_ssm_v7x_xy2x2_y_b4_s256_d256_n16_f32_1_alg».proof.Proof.Gen.ReferenceIdeal
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev tailProg187 (c : Dev nD) : Prog (TpuEff nD τ sig (Elt F) (Pipeline.Sig Λ₀ (Fin 0) fun p => (pcfgs (F := F) p).Adm) .tc) PUnit := main_part187 (F := F) c
abbrev tailProg186 (c : Dev nD) : Prog (TpuEff nD τ sig (Elt F) (Pipeline.Sig Λ₀ (Fin 0) fun p => (pcfgs (F := F) p).Adm) .tc) PUnit := main_part186 (F := F) c >>= fun _ => tailProg187 c
abbrev tailProg185 (c : Dev nD) : Prog (TpuEff nD τ sig (Elt F) (Pipeline.Sig Λ₀ (Fin 0) fun p => (pcfgs (F := F) p).Adm) .tc) PUnit := main_part185 (F := F) c >>= fun _ => tailProg186 c
abbrev tailProg184 (c : Dev nD) : Prog (TpuEff nD τ sig (Elt F) (Pipeline.Sig Λ₀ (Fin 0) fun p => (pcfgs (F := F) p).Adm) .tc) PUnit := main_part184 (F := F) c >>= fun _ => tailProg185 c
abbrev tailProg183 (c : Dev nD) : Prog (TpuEff nD τ sig (Elt F) (Pipeline.Sig Λ₀ (Fin 0) fun p => (pcfgs (F := F) p).Adm) .tc) PUnit := main_part183 (F := F) c >>= fun _ => tailProg184 c
abbrev tailProg182 (c : Dev nD) : Prog (TpuEff nD τ sig (Elt F) (Pipeline.Sig Λ₀ (Fin 0) fun p => (pcfgs (F := F) p).Adm) .tc) PUnit := main_part182 (F := F) c >>= fun _ => tailProg183 c
abbrev tailProg181 (c : Dev nD) : Prog (TpuEff nD τ sig (Elt F) (Pipeline.Sig Λ₀ (Fin 0) fun p => (pcfgs (F := F) p).Adm) .tc) PUnit := main_part181 (F := F) c >>= fun _ => tailProg182 c
abbrev tailProg180 (c : Dev nD) : Prog (TpuEff nD τ sig (Elt F) (Pipeline.Sig Λ₀ (Fin 0) fun p => (pcfgs (F := F) p).Adm) .tc) PUnit := main_part180 (F := F) c >>= fun _ => tailProg181 c
abbrev tailProg179 (c : Dev nD) : Prog (TpuEff nD τ sig (Elt F) (Pipeline.Sig Λ₀ (Fin 0) fun p => (pcfgs (F := F) p).Adm) .tc) PUnit := main_part179 (F := F) c >>= fun _ => tailProg180 c
abbrev tailProg178 (c : Dev nD) : Prog (TpuEff nD τ sig (Elt F) (Pipeline.Sig Λ₀ (Fin 0) fun p => (pcfgs (F := F) p).Adm) .tc) PUnit := main_part178 (F := F) c >>= fun _ => tailProg179 c
abbrev tailProg177 (c : Dev nD) : Prog (TpuEff nD τ sig (Elt F) (Pipeline.Sig Λ₀ (Fin 0) fun p => (pcfgs (F := F) p).Adm) .tc) PUnit := main_part177 (F := F) c >>= fun _ => tailProg178 c
abbrev tailProg176 (c : Dev nD) : Prog (TpuEff nD τ sig (Elt F) (Pipeline.Sig Λ₀ (Fin 0) fun p => (pcfgs (F := F) p).Adm) .tc) PUnit := main_part176 (F := F) c >>= fun _ => tailProg177 c
abbrev tailProg175 (c : Dev nD) : Prog (TpuEff nD τ sig (Elt F) (Pipeline.Sig Λ₀ (Fin 0) fun p => (pcfgs (F := F) p).Adm) .tc) PUnit := main_part175 (F := F) c >>= fun _ => tailProg176 c
abbrev tailProg174 (c : Dev nD) : Prog (TpuEff nD τ sig (Elt F) (Pipeline.Sig Λ₀ (Fin 0) fun p => (pcfgs (F := F) p).Adm) .tc) PUnit := main_part174 (F := F) c >>= fun _ => tailProg175 c
abbrev tailProg173 (c : Dev nD) : Prog (TpuEff nD τ sig (Elt F) (Pipeline.Sig Λ₀ (Fin 0) fun p => (pcfgs (F := F) p).Adm) .tc) PUnit := main_part173 (F := F) c >>= fun _ => tailProg174 c
abbrev tailProg172 (c : Dev nD) : Prog (TpuEff nD τ sig (Elt F) (Pipeline.Sig Λ₀ (Fin 0) fun p => (pcfgs (F := F) p).Adm) .tc) PUnit := main_part172 (F := F) c >>= fun _ => tailProg173 c
abbrev tailProg171 (c : Dev nD) : Prog (TpuEff nD τ sig (Elt F) (Pipeline.Sig Λ₀ (Fin 0) fun p => (pcfgs (F := F) p).Adm) .tc) PUnit := main_part171 (F := F) c >>= fun _ => tailProg172 c
abbrev tailProg170 (c : Dev nD) : Prog (TpuEff nD τ sig (Elt F) (Pipeline.Sig Λ₀ (Fin 0) fun p => (pcfgs (F := F) p).Adm) .tc) PUnit := main_part170 (F := F) c >>= fun _ => tailProg171 c
abbrev tailProg169 (c : Dev nD) : Prog (TpuEff nD τ sig (Elt F) (Pipeline.Sig Λ₀ (Fin 0) fun p => (pcfgs (F := F) p).Adm) .tc) PUnit := main_part169 (F := F) c >>= fun _ => tailProg170 c
abbrev tailProg168 (c : Dev nD) : Prog (TpuEff nD τ sig (Elt F) (Pipeline.Sig Λ₀ (Fin 0) fun p => (pcfgs (F := F) p).Adm) .tc) PUnit := main_part168 (F := F) c >>= fun _ => tailProg169 c
abbrev tailProg167 (c : Dev nD) : Prog (TpuEff nD τ sig (Elt F) (Pipeline.Sig Λ₀ (Fin 0) fun p => (pcfgs (F := F) p).Adm) .tc) PUnit := main_part167 (F := F) c >>= fun _ => tailProg168 c
abbrev tailProg166 (c : Dev nD) : Prog (TpuEff nD τ sig (Elt F) (Pipeline.Sig Λ₀ (Fin 0) fun p => (pcfgs (F := F) p).Adm) .tc) PUnit := main_part166 (F := F) c >>= fun _ => tailProg167 c
abbrev tailProg165 (c : Dev nD) : Prog (TpuEff nD τ sig (Elt F) (Pipeline.Sig Λ₀ (Fin 0) fun p => (pcfgs (F := F) p).Adm) .tc) PUnit := main_part165 (F := F) c >>= fun _ => tailProg166 c
abbrev tailProg164 (c : Dev nD) : Prog (TpuEff nD τ sig (Elt F) (Pipeline.Sig Λ₀ (Fin 0) fun p => (pcfgs (F := F) p).Adm) .tc) PUnit := main_part164 (F := F) c >>= fun _ => tailProg165 c
abbrev tailProg163 (c : Dev nD) : Prog (TpuEff nD τ sig (Elt F) (Pipeline.Sig Λ₀ (Fin 0) fun p => (pcfgs (F := F) p).Adm) .tc) PUnit := main_part163 (F := F) c >>= fun _ => tailProg164 c
abbrev tailProg162 (c : Dev nD) : Prog (TpuEff nD τ sig (Elt F) (Pipeline.Sig Λ₀ (Fin 0) fun p => (pcfgs (F := F) p).Adm) .tc) PUnit := main_part162 (F := F) c >>= fun _ => tailProg163 c
abbrev tailProg161 (c : Dev nD) : Prog (TpuEff nD τ sig (Elt F) (Pipeline.Sig Λ₀ (Fin 0) fun p => (pcfgs (F := F) p).Adm) .tc) PUnit := main_part161 (F := F) c >>= fun _ => tailProg162 c
abbrev tailProg160 (c : Dev nD) : Prog (TpuEff nD τ sig (Elt F) (Pipeline.Sig Λ₀ (Fin 0) fun p => (pcfgs (F := F) p).Adm) .tc) PUnit := main_part160 (F := F) c >>= fun _ => tailProg161 c
abbrev tailProg159 (c : Dev nD) : Prog (TpuEff nD τ sig (Elt F) (Pipeline.Sig Λ₀ (Fin 0) fun p => (pcfgs (F := F) p).Adm) .tc) PUnit := main_part159 (F := F) c >>= fun _ => tailProg160 c
abbrev tailProg158 (c : Dev nD) : Prog (TpuEff nD τ sig (Elt F) (Pipeline.Sig Λ₀ (Fin 0) fun p => (pcfgs (F := F) p).Adm) .tc) PUnit := main_part158 (F := F) c >>= fun _ => tailProg159 c
abbrev tailProg157 (c : Dev nD) : Prog (TpuEff nD τ sig (Elt F) (Pipeline.Sig Λ₀ (Fin 0) fun p => (pcfgs (F := F) p).Adm) .tc) PUnit := main_part157 (F := F) c >>= fun _ => tailProg158 c
abbrev tailProg156 (c : Dev nD) : Prog (TpuEff nD τ sig (Elt F) (Pipeline.Sig Λ₀ (Fin 0) fun p => (pcfgs (F := F) p).Adm) .tc) PUnit := main_part156 (F := F) c >>= fun _ => tailProg157 c
abbrev tailProg155 (c : Dev nD) : Prog (TpuEff nD τ sig (Elt F) (Pipeline.Sig Λ₀ (Fin 0) fun p => (pcfgs (F := F) p).Adm) .tc) PUnit := main_part155 (F := F) c >>= fun _ => tailProg156 c
abbrev tailProg154 (c : Dev nD) : Prog (TpuEff nD τ sig (Elt F) (Pipeline.Sig Λ₀ (Fin 0) fun p => (pcfgs (F := F) p).Adm) .tc) PUnit := main_part154 (F := F) c >>= fun _ => tailProg155 c
abbrev tailProg153 (c : Dev nD) : Prog (TpuEff nD τ sig (Elt F) (Pipeline.Sig Λ₀ (Fin 0) fun p => (pcfgs (F := F) p).Adm) .tc) PUnit := main_part153 (F := F) c >>= fun _ => tailProg154 c
abbrev tailProg152 (c : Dev nD) : Prog (TpuEff nD τ sig (Elt F) (Pipeline.Sig Λ₀ (Fin 0) fun p => (pcfgs (F := F) p).Adm) .tc) PUnit := main_part152 (F := F) c >>= fun _ => tailProg153 c
abbrev tailProg151 (c : Dev nD) : Prog (TpuEff nD τ sig (Elt F) (Pipeline.Sig Λ₀ (Fin 0) fun p => (pcfgs (F := F) p).Adm) .tc) PUnit := main_part151 (F := F) c >>= fun _ => tailProg152 c
abbrev tailProg150 (c : Dev nD) : Prog (TpuEff nD τ sig (Elt F) (Pipeline.Sig Λ₀ (Fin 0) fun p => (pcfgs (F := F) p).Adm) .tc) PUnit := main_part150 (F := F) c >>= fun _ => tailProg151 c
abbrev tailProg149 (c : Dev nD) : Prog (TpuEff nD τ sig (Elt F) (Pipeline.Sig Λ₀ (Fin 0) fun p => (pcfgs (F := F) p).Adm) .tc) PUnit := main_part149 (F := F) c >>= fun _ => tailProg150 c
abbrev tailProg148 (c : Dev nD) : Prog (TpuEff nD τ sig (Elt F) (Pipeline.Sig Λ₀ (Fin 0) fun p => (pcfgs (F := F) p).Adm) .tc) PUnit := main_part148 (F := F) c >>= fun _ => tailProg149 c
abbrev tailProg147 (c : Dev nD) : Prog (TpuEff nD τ sig (Elt F) (Pipeline.Sig Λ₀ (Fin 0) fun p => (pcfgs (F := F) p).Adm) .tc) PUnit := main_part147 (F := F) c >>= fun _ => tailProg148 c
abbrev tailProg146 (c : Dev nD) : Prog (TpuEff nD τ sig (Elt F) (Pipeline.Sig Λ₀ (Fin 0) fun p => (pcfgs (F := F) p).Adm) .tc) PUnit := main_part146 (F := F) c >>= fun _ => tailProg147 c
abbrev tailProg145 (c : Dev nD) : Prog (TpuEff nD τ sig (Elt F) (Pipeline.Sig Λ₀ (Fin 0) fun p => (pcfgs (F := F) p).Adm) .tc) PUnit := main_part145 (F := F) c >>= fun _ => tailProg146 c
abbrev tailProg144 (c : Dev nD) : Prog (TpuEff nD τ sig (Elt F) (Pipeline.Sig Λ₀ (Fin 0) fun p => (pcfgs (F := F) p).Adm) .tc) PUnit := main_part144 (F := F) c >>= fun _ => tailProg145 c
abbrev tailProg143 (c : Dev nD) : Prog (TpuEff nD τ sig (Elt F) (Pipeline.Sig Λ₀ (Fin 0) fun p => (pcfgs (F := F) p).Adm) .tc) PUnit := main_part143 (F := F) c >>= fun _ => tailProg144 c
abbrev tailProg142 (c : Dev nD) : Prog (TpuEff nD τ sig (Elt F) (Pipeline.Sig Λ₀ (Fin 0) fun p => (pcfgs (F := F) p).Adm) .tc) PUnit := main_part142 (F := F) c >>= fun _ => tailProg143 c
abbrev tailProg141 (c : Dev nD) : Prog (TpuEff nD τ sig (Elt F) (Pipeline.Sig Λ₀ (Fin 0) fun p => (pcfgs (F := F) p).Adm) .tc) PUnit := main_part141 (F := F) c >>= fun _ => tailProg142 c
abbrev tailProg140 (c : Dev nD) : Prog (TpuEff nD τ sig (Elt F) (Pipeline.Sig Λ₀ (Fin 0) fun p => (pcfgs (F := F) p).Adm) .tc) PUnit := main_part140 (F := F) c >>= fun _ => tailProg141 c
abbrev tailProg139 (c : Dev nD) : Prog (TpuEff nD τ sig (Elt F) (Pipeline.Sig Λ₀ (Fin 0) fun p => (pcfgs (F := F) p).Adm) .tc) PUnit := main_part139 (F := F) c >>= fun _ => tailProg140 c
abbrev tailProg138 (c : Dev nD) : Prog (TpuEff nD τ sig (Elt F) (Pipeline.Sig Λ₀ (Fin 0) fun p => (pcfgs (F := F) p).Adm) .tc) PUnit := main_part138 (F := F) c >>= fun _ => tailProg139 c
abbrev tailProg137 (c : Dev nD) : Prog (TpuEff nD τ sig (Elt F) (Pipeline.Sig Λ₀ (Fin 0) fun p => (pcfgs (F := F) p).Adm) .tc) PUnit := main_part137 (F := F) c >>= fun _ => tailProg138 c
abbrev tailProg136 (c : Dev nD) : Prog (TpuEff nD τ sig (Elt F) (Pipeline.Sig Λ₀ (Fin 0) fun p => (pcfgs (F := F) p).Adm) .tc) PUnit := main_part136 (F := F) c >>= fun _ => tailProg137 c
abbrev tailProg135 (c : Dev nD) : Prog (TpuEff nD τ sig (Elt F) (Pipeline.Sig Λ₀ (Fin 0) fun p => (pcfgs (F := F) p).Adm) .tc) PUnit := main_part135 (F := F) c >>= fun _ => tailProg136 c
abbrev tailProg134 (c : Dev nD) : Prog (TpuEff nD τ sig (Elt F) (Pipeline.Sig Λ₀ (Fin 0) fun p => (pcfgs (F := F) p).Adm) .tc) PUnit := main_part134 (F := F) c >>= fun _ => tailProg135 c
abbrev tailProg133 (c : Dev nD) : Prog (TpuEff nD τ sig (Elt F) (Pipeline.Sig Λ₀ (Fin 0) fun p => (pcfgs (F := F) p).Adm) .tc) PUnit := main_part133 (F := F) c >>= fun _ => tailProg134 c
abbrev tailProg132 (c : Dev nD) : Prog (TpuEff nD τ sig (Elt F) (Pipeline.Sig Λ₀ (Fin 0) fun p => (pcfgs (F := F) p).Adm) .tc) PUnit := main_part132 (F := F) c >>= fun _ => tailProg133 c
abbrev tailProg131 (c : Dev nD) : Prog (TpuEff nD τ sig (Elt F) (Pipeline.Sig Λ₀ (Fin 0) fun p => (pcfgs (F := F) p).Adm) .tc) PUnit := main_part131 (F := F) c >>= fun _ => tailProg132 c
abbrev tailProg130 (c : Dev nD) : Prog (TpuEff nD τ sig (Elt F) (Pipeline.Sig Λ₀ (Fin 0) fun p => (pcfgs (F := F) p).Adm) .tc) PUnit := main_part130 (F := F) c >>= fun _ => tailProg131 c
abbrev tailProg129 (c : Dev nD) : Prog (TpuEff nD τ sig (Elt F) (Pipeline.Sig Λ₀ (Fin 0) fun p => (pcfgs (F := F) p).Adm) .tc) PUnit := main_part129 (F := F) c >>= fun _ => tailProg130 c
abbrev tailProg128 (c : Dev nD) : Prog (TpuEff nD τ sig (Elt F) (Pipeline.Sig Λ₀ (Fin 0) fun p => (pcfgs (F := F) p).Adm) .tc) PUnit := main_part128 (F := F) c >>= fun _ => tailProg129 c
abbrev tailProg127 (c : Dev nD) : Prog (TpuEff nD τ sig (Elt F) (Pipeline.Sig Λ₀ (Fin 0) fun p => (pcfgs (F := F) p).Adm) .tc) PUnit := main_part127 (F := F) c >>= fun _ => tailProg128 c
abbrev tailProg126 (c : Dev nD) : Prog (TpuEff nD τ sig (Elt F) (Pipeline.Sig Λ₀ (Fin 0) fun p => (pcfgs (F := F) p).Adm) .tc) PUnit := main_part126 (F := F) c >>= fun _ => tailProg127 c
abbrev tailProg125 (c : Dev nD) : Prog (TpuEff nD τ sig (Elt F) (Pipeline.Sig Λ₀ (Fin 0) fun p => (pcfgs (F := F) p).Adm) .tc) PUnit := main_part125 (F := F) c >>= fun _ => tailProg126 c
abbrev tailProg124 (c : Dev nD) : Prog (TpuEff nD τ sig (Elt F) (Pipeline.Sig Λ₀ (Fin 0) fun p => (pcfgs (F := F) p).Adm) .tc) PUnit := main_part124 (F := F) c >>= fun _ => tailProg125 c
abbrev tailProg123 (c : Dev nD) : Prog (TpuEff nD τ sig (Elt F) (Pipeline.Sig Λ₀ (Fin 0) fun p => (pcfgs (F := F) p).Adm) .tc) PUnit := main_part123 (F := F) c >>= fun _ => tailProg124 c
abbrev tailProg122 (c : Dev nD) : Prog (TpuEff nD τ sig (Elt F) (Pipeline.Sig Λ₀ (Fin 0) fun p => (pcfgs (F := F) p).Adm) .tc) PUnit := main_part122 (F := F) c >>= fun _ => tailProg123 c
abbrev tailProg121 (c : Dev nD) : Prog (TpuEff nD τ sig (Elt F) (Pipeline.Sig Λ₀ (Fin 0) fun p => (pcfgs (F := F) p).Adm) .tc) PUnit := main_part121 (F := F) c >>= fun _ => tailProg122 c
abbrev tailProg120 (c : Dev nD) : Prog (TpuEff nD τ sig (Elt F) (Pipeline.Sig Λ₀ (Fin 0) fun p => (pcfgs (F := F) p).Adm) .tc) PUnit := main_part120 (F := F) c >>= fun _ => tailProg121 c
abbrev tailProg119 (c : Dev nD) : Prog (TpuEff nD τ sig (Elt F) (Pipeline.Sig Λ₀ (Fin 0) fun p => (pcfgs (F := F) p).Adm) .tc) PUnit := main_part119 (F := F) c >>= fun _ => tailProg120 c
abbrev tailProg118 (c : Dev nD) : Prog (TpuEff nD τ sig (Elt F) (Pipeline.Sig Λ₀ (Fin 0) fun p => (pcfgs (F := F) p).Adm) .tc) PUnit := main_part118 (F := F) c >>= fun _ => tailProg119 c
abbrev tailProg117 (c : Dev nD) : Prog (TpuEff nD τ sig (Elt F) (Pipeline.Sig Λ₀ (Fin 0) fun p => (pcfgs (F := F) p).Adm) .tc) PUnit := main_part117 (F := F) c >>= fun _ => tailProg118 c
abbrev tailProg116 (c : Dev nD) : Prog (TpuEff nD τ sig (Elt F) (Pipeline.Sig Λ₀ (Fin 0) fun p => (pcfgs (F := F) p).Adm) .tc) PUnit := main_part116 (F := F) c >>= fun _ => tailProg117 c
abbrev tailProg115 (c : Dev nD) : Prog (TpuEff nD τ sig (Elt F) (Pipeline.Sig Λ₀ (Fin 0) fun p => (pcfgs (F := F) p).Adm) .tc) PUnit := main_part115 (F := F) c >>= fun _ => tailProg116 c
abbrev tailProg114 (c : Dev nD) : Prog (TpuEff nD τ sig (Elt F) (Pipeline.Sig Λ₀ (Fin 0) fun p => (pcfgs (F := F) p).Adm) .tc) PUnit := main_part114 (F := F) c >>= fun _ => tailProg115 c
abbrev tailProg113 (c : Dev nD) : Prog (TpuEff nD τ sig (Elt F) (Pipeline.Sig Λ₀ (Fin 0) fun p => (pcfgs (F := F) p).Adm) .tc) PUnit := main_part113 (F := F) c >>= fun _ => tailProg114 c
abbrev tailProg112 (c : Dev nD) : Prog (TpuEff nD τ sig (Elt F) (Pipeline.Sig Λ₀ (Fin 0) fun p => (pcfgs (F := F) p).Adm) .tc) PUnit := main_part112 (F := F) c >>= fun _ => tailProg113 c
abbrev tailProg111 (c : Dev nD) : Prog (TpuEff nD τ sig (Elt F) (Pipeline.Sig Λ₀ (Fin 0) fun p => (pcfgs (F := F) p).Adm) .tc) PUnit := main_part111 (F := F) c >>= fun _ => tailProg112 c
abbrev tailProg110 (c : Dev nD) : Prog (TpuEff nD τ sig (Elt F) (Pipeline.Sig Λ₀ (Fin 0) fun p => (pcfgs (F := F) p).Adm) .tc) PUnit := main_part110 (F := F) c >>= fun _ => tailProg111 c
abbrev tailProg109 (c : Dev nD) : Prog (TpuEff nD τ sig (Elt F) (Pipeline.Sig Λ₀ (Fin 0) fun p => (pcfgs (F := F) p).Adm) .tc) PUnit := main_part109 (F := F) c >>= fun _ => tailProg110 c
abbrev tailProg108 (c : Dev nD) : Prog (TpuEff nD τ sig (Elt F) (Pipeline.Sig Λ₀ (Fin 0) fun p => (pcfgs (F := F) p).Adm) .tc) PUnit := main_part108 (F := F) c >>= fun _ => tailProg109 c
abbrev tailProg107 (c : Dev nD) : Prog (TpuEff nD τ sig (Elt F) (Pipeline.Sig Λ₀ (Fin 0) fun p => (pcfgs (F := F) p).Adm) .tc) PUnit := main_part107 (F := F) c >>= fun _ => tailProg108 c
abbrev tailProg106 (c : Dev nD) : Prog (TpuEff nD τ sig (Elt F) (Pipeline.Sig Λ₀ (Fin 0) fun p => (pcfgs (F := F) p).Adm) .tc) PUnit := main_part106 (F := F) c >>= fun _ => tailProg107 c
abbrev tailProg105 (c : Dev nD) : Prog (TpuEff nD τ sig (Elt F) (Pipeline.Sig Λ₀ (Fin 0) fun p => (pcfgs (F := F) p).Adm) .tc) PUnit := main_part105 (F := F) c >>= fun _ => tailProg106 c
abbrev tailProg104 (c : Dev nD) : Prog (TpuEff nD τ sig (Elt F) (Pipeline.Sig Λ₀ (Fin 0) fun p => (pcfgs (F := F) p).Adm) .tc) PUnit := main_part104 (F := F) c >>= fun _ => tailProg105 c
abbrev tailProg103 (c : Dev nD) : Prog (TpuEff nD τ sig (Elt F) (Pipeline.Sig Λ₀ (Fin 0) fun p => (pcfgs (F := F) p).Adm) .tc) PUnit := main_part103 (F := F) c >>= fun _ => tailProg104 c
abbrev tailProg102 (c : Dev nD) : Prog (TpuEff nD τ sig (Elt F) (Pipeline.Sig Λ₀ (Fin 0) fun p => (pcfgs (F := F) p).Adm) .tc) PUnit := main_part102 (F := F) c >>= fun _ => tailProg103 c
abbrev tailProg101 (c : Dev nD) : Prog (TpuEff nD τ sig (Elt F) (Pipeline.Sig Λ₀ (Fin 0) fun p => (pcfgs (F := F) p).Adm) .tc) PUnit := main_part101 (F := F) c >>= fun _ => tailProg102 c
abbrev tailProg100 (c : Dev nD) : Prog (TpuEff nD τ sig (Elt F) (Pipeline.Sig Λ₀ (Fin 0) fun p => (pcfgs (F := F) p).Adm) .tc) PUnit := main_part100 (F := F) c >>= fun _ => tailProg101 c
abbrev tailProg99 (c : Dev nD) : Prog (TpuEff nD τ sig (Elt F) (Pipeline.Sig Λ₀ (Fin 0) fun p => (pcfgs (F := F) p).Adm) .tc) PUnit := main_part99 (F := F) c >>= fun _ => tailProg100 c
abbrev tailProg98 (c : Dev nD) : Prog (TpuEff nD τ sig (Elt F) (Pipeline.Sig Λ₀ (Fin 0) fun p => (pcfgs (F := F) p).Adm) .tc) PUnit := main_part98 (F := F) c >>= fun _ => tailProg99 c
abbrev tailProg97 (c : Dev nD) : Prog (TpuEff nD τ sig (Elt F) (Pipeline.Sig Λ₀ (Fin 0) fun p => (pcfgs (F := F) p).Adm) .tc) PUnit := main_part97 (F := F) c >>= fun _ => tailProg98 c
abbrev tailProg96 (c : Dev nD) : Prog (TpuEff nD τ sig (Elt F) (Pipeline.Sig Λ₀ (Fin 0) fun p => (pcfgs (F := F) p).Adm) .tc) PUnit := main_part96 (F := F) c >>= fun _ => tailProg97 c
abbrev tailProg95 (c : Dev nD) : Prog (TpuEff nD τ sig (Elt F) (Pipeline.Sig Λ₀ (Fin 0) fun p => (pcfgs (F := F) p).Adm) .tc) PUnit := main_part95 (F := F) c >>= fun _ => tailProg96 c
abbrev tailProg94 (c : Dev nD) : Prog (TpuEff nD τ sig (Elt F) (Pipeline.Sig Λ₀ (Fin 0) fun p => (pcfgs (F := F) p).Adm) .tc) PUnit := main_part94 (F := F) c >>= fun _ => tailProg95 c
abbrev tailProg93 (c : Dev nD) : Prog (TpuEff nD τ sig (Elt F) (Pipeline.Sig Λ₀ (Fin 0) fun p => (pcfgs (F := F) p).Adm) .tc) PUnit := main_part93 (F := F) c >>= fun _ => tailProg94 c
abbrev tailProg92 (c : Dev nD) : Prog (TpuEff nD τ sig (Elt F) (Pipeline.Sig Λ₀ (Fin 0) fun p => (pcfgs (F := F) p).Adm) .tc) PUnit := main_part92 (F := F) c >>= fun _ => tailProg93 c
abbrev tailProg91 (c : Dev nD) : Prog (TpuEff nD τ sig (Elt F) (Pipeline.Sig Λ₀ (Fin 0) fun p => (pcfgs (F := F) p).Adm) .tc) PUnit := main_part91 (F := F) c >>= fun _ => tailProg92 c
abbrev tailProg90 (c : Dev nD) : Prog (TpuEff nD τ sig (Elt F) (Pipeline.Sig Λ₀ (Fin 0) fun p => (pcfgs (F := F) p).Adm) .tc) PUnit := main_part90 (F := F) c >>= fun _ => tailProg91 c
abbrev tailProg89 (c : Dev nD) : Prog (TpuEff nD τ sig (Elt F) (Pipeline.Sig Λ₀ (Fin 0) fun p => (pcfgs (F := F) p).Adm) .tc) PUnit := main_part89 (F := F) c >>= fun _ => tailProg90 c
abbrev tailProg88 (c : Dev nD) : Prog (TpuEff nD τ sig (Elt F) (Pipeline.Sig Λ₀ (Fin 0) fun p => (pcfgs (F := F) p).Adm) .tc) PUnit := main_part88 (F := F) c >>= fun _ => tailProg89 c
abbrev tailProg87 (c : Dev nD) : Prog (TpuEff nD τ sig (Elt F) (Pipeline.Sig Λ₀ (Fin 0) fun p => (pcfgs (F := F) p).Adm) .tc) PUnit := main_part87 (F := F) c >>= fun _ => tailProg88 c
abbrev tailProg86 (c : Dev nD) : Prog (TpuEff nD τ sig (Elt F) (Pipeline.Sig Λ₀ (Fin 0) fun p => (pcfgs (F := F) p).Adm) .tc) PUnit := main_part86 (F := F) c >>= fun _ => tailProg87 c
abbrev tailProg85 (c : Dev nD) : Prog (TpuEff nD τ sig (Elt F) (Pipeline.Sig Λ₀ (Fin 0) fun p => (pcfgs (F := F) p).Adm) .tc) PUnit := main_part85 (F := F) c >>= fun _ => tailProg86 c
abbrev tailProg84 (c : Dev nD) : Prog (TpuEff nD τ sig (Elt F) (Pipeline.Sig Λ₀ (Fin 0) fun p => (pcfgs (F := F) p).Adm) .tc) PUnit := main_part84 (F := F) c >>= fun _ => tailProg85 c
abbrev tailProg83 (c : Dev nD) : Prog (TpuEff nD τ sig (Elt F) (Pipeline.Sig Λ₀ (Fin 0) fun p => (pcfgs (F := F) p).Adm) .tc) PUnit := main_part83 (F := F) c >>= fun _ => tailProg84 c
abbrev tailProg82 (c : Dev nD) : Prog (TpuEff nD τ sig (Elt F) (Pipeline.Sig Λ₀ (Fin 0) fun p => (pcfgs (F := F) p).Adm) .tc) PUnit := main_part82 (F := F) c >>= fun _ => tailProg83 c
abbrev tailProg81 (c : Dev nD) : Prog (TpuEff nD τ sig (Elt F) (Pipeline.Sig Λ₀ (Fin 0) fun p => (pcfgs (F := F) p).Adm) .tc) PUnit := main_part81 (F := F) c >>= fun _ => tailProg82 c
abbrev tailProg80 (c : Dev nD) : Prog (TpuEff nD τ sig (Elt F) (Pipeline.Sig Λ₀ (Fin 0) fun p => (pcfgs (F := F) p).Adm) .tc) PUnit := main_part80 (F := F) c >>= fun _ => tailProg81 c
abbrev tailProg79 (c : Dev nD) : Prog (TpuEff nD τ sig (Elt F) (Pipeline.Sig Λ₀ (Fin 0) fun p => (pcfgs (F := F) p).Adm) .tc) PUnit := main_part79 (F := F) c >>= fun _ => tailProg80 c
abbrev tailProg78 (c : Dev nD) : Prog (TpuEff nD τ sig (Elt F) (Pipeline.Sig Λ₀ (Fin 0) fun p => (pcfgs (F := F) p).Adm) .tc) PUnit := main_part78 (F := F) c >>= fun _ => tailProg79 c
abbrev tailProg77 (c : Dev nD) : Prog (TpuEff nD τ sig (Elt F) (Pipeline.Sig Λ₀ (Fin 0) fun p => (pcfgs (F := F) p).Adm) .tc) PUnit := main_part77 (F := F) c >>= fun _ => tailProg78 c
abbrev tailProg76 (c : Dev nD) : Prog (TpuEff nD τ sig (Elt F) (Pipeline.Sig Λ₀ (Fin 0) fun p => (pcfgs (F := F) p).Adm) .tc) PUnit := main_part76 (F := F) c >>= fun _ => tailProg77 c
abbrev tailProg75 (c : Dev nD) : Prog (TpuEff nD τ sig (Elt F) (Pipeline.Sig Λ₀ (Fin 0) fun p => (pcfgs (F := F) p).Adm) .tc) PUnit := main_part75 (F := F) c >>= fun _ => tailProg76 c
abbrev tailProg74 (c : Dev nD) : Prog (TpuEff nD τ sig (Elt F) (Pipeline.Sig Λ₀ (Fin 0) fun p => (pcfgs (F := F) p).Adm) .tc) PUnit := main_part74 (F := F) c >>= fun _ => tailProg75 c
abbrev tailProg73 (c : Dev nD) : Prog (TpuEff nD τ sig (Elt F) (Pipeline.Sig Λ₀ (Fin 0) fun p => (pcfgs (F := F) p).Adm) .tc) PUnit := main_part73 (F := F) c >>= fun _ => tailProg74 c
abbrev tailProg72 (c : Dev nD) : Prog (TpuEff nD τ sig (Elt F) (Pipeline.Sig Λ₀ (Fin 0) fun p => (pcfgs (F := F) p).Adm) .tc) PUnit := main_part72 (F := F) c >>= fun _ => tailProg73 c
abbrev tailProg71 (c : Dev nD) : Prog (TpuEff nD τ sig (Elt F) (Pipeline.Sig Λ₀ (Fin 0) fun p => (pcfgs (F := F) p).Adm) .tc) PUnit := main_part71 (F := F) c >>= fun _ => tailProg72 c
abbrev tailProg70 (c : Dev nD) : Prog (TpuEff nD τ sig (Elt F) (Pipeline.Sig Λ₀ (Fin 0) fun p => (pcfgs (F := F) p).Adm) .tc) PUnit := main_part70 (F := F) c >>= fun _ => tailProg71 c
abbrev tailProg69 (c : Dev nD) : Prog (TpuEff nD τ sig (Elt F) (Pipeline.Sig Λ₀ (Fin 0) fun p => (pcfgs (F := F) p).Adm) .tc) PUnit := main_part69 (F := F) c >>= fun _ => tailProg70 c
abbrev tailProg68 (c : Dev nD) : Prog (TpuEff nD τ sig (Elt F) (Pipeline.Sig Λ₀ (Fin 0) fun p => (pcfgs (F := F) p).Adm) .tc) PUnit := main_part68 (F := F) c >>= fun _ => tailProg69 c
abbrev tailProg67 (c : Dev nD) : Prog (TpuEff nD τ sig (Elt F) (Pipeline.Sig Λ₀ (Fin 0) fun p => (pcfgs (F := F) p).Adm) .tc) PUnit := main_part67 (F := F) c >>= fun _ => tailProg68 c
abbrev tailProg66 (c : Dev nD) : Prog (TpuEff nD τ sig (Elt F) (Pipeline.Sig Λ₀ (Fin 0) fun p => (pcfgs (F := F) p).Adm) .tc) PUnit := main_part66 (F := F) c >>= fun _ => tailProg67 c
abbrev tailProg65 (c : Dev nD) : Prog (TpuEff nD τ sig (Elt F) (Pipeline.Sig Λ₀ (Fin 0) fun p => (pcfgs (F := F) p).Adm) .tc) PUnit := main_part65 (F := F) c >>= fun _ => tailProg66 c
abbrev tailProg64 (c : Dev nD) : Prog (TpuEff nD τ sig (Elt F) (Pipeline.Sig Λ₀ (Fin 0) fun p => (pcfgs (F := F) p).Adm) .tc) PUnit := main_part64 (F := F) c >>= fun _ => tailProg65 c
abbrev tailProg63 (c : Dev nD) : Prog (TpuEff nD τ sig (Elt F) (Pipeline.Sig Λ₀ (Fin 0) fun p => (pcfgs (F := F) p).Adm) .tc) PUnit := main_part63 (F := F) c >>= fun _ => tailProg64 c
abbrev tailProg62 (c : Dev nD) : Prog (TpuEff nD τ sig (Elt F) (Pipeline.Sig Λ₀ (Fin 0) fun p => (pcfgs (F := F) p).Adm) .tc) PUnit := main_part62 (F := F) c >>= fun _ => tailProg63 c
abbrev tailProg61 (c : Dev nD) : Prog (TpuEff nD τ sig (Elt F) (Pipeline.Sig Λ₀ (Fin 0) fun p => (pcfgs (F := F) p).Adm) .tc) PUnit := main_part61 (F := F) c >>= fun _ => tailProg62 c
abbrev tailProg60 (c : Dev nD) : Prog (TpuEff nD τ sig (Elt F) (Pipeline.Sig Λ₀ (Fin 0) fun p => (pcfgs (F := F) p).Adm) .tc) PUnit := main_part60 (F := F) c >>= fun _ => tailProg61 c
abbrev tailProg59 (c : Dev nD) : Prog (TpuEff nD τ sig (Elt F) (Pipeline.Sig Λ₀ (Fin 0) fun p => (pcfgs (F := F) p).Adm) .tc) PUnit := main_part59 (F := F) c >>= fun _ => tailProg60 c
abbrev tailProg58 (c : Dev nD) : Prog (TpuEff nD τ sig (Elt F) (Pipeline.Sig Λ₀ (Fin 0) fun p => (pcfgs (F := F) p).Adm) .tc) PUnit := main_part58 (F := F) c >>= fun _ => tailProg59 c
abbrev tailProg57 (c : Dev nD) : Prog (TpuEff nD τ sig (Elt F) (Pipeline.Sig Λ₀ (Fin 0) fun p => (pcfgs (F := F) p).Adm) .tc) PUnit := main_part57 (F := F) c >>= fun _ => tailProg58 c
abbrev tailProg56 (c : Dev nD) : Prog (TpuEff nD τ sig (Elt F) (Pipeline.Sig Λ₀ (Fin 0) fun p => (pcfgs (F := F) p).Adm) .tc) PUnit := main_part56 (F := F) c >>= fun _ => tailProg57 c
abbrev tailProg55 (c : Dev nD) : Prog (TpuEff nD τ sig (Elt F) (Pipeline.Sig Λ₀ (Fin 0) fun p => (pcfgs (F := F) p).Adm) .tc) PUnit := main_part55 (F := F) c >>= fun _ => tailProg56 c
abbrev tailProg54 (c : Dev nD) : Prog (TpuEff nD τ sig (Elt F) (Pipeline.Sig Λ₀ (Fin 0) fun p => (pcfgs (F := F) p).Adm) .tc) PUnit := main_part54 (F := F) c >>= fun _ => tailProg55 c
abbrev tailProg53 (c : Dev nD) : Prog (TpuEff nD τ sig (Elt F) (Pipeline.Sig Λ₀ (Fin 0) fun p => (pcfgs (F := F) p).Adm) .tc) PUnit := main_part53 (F := F) c >>= fun _ => tailProg54 c
abbrev tailProg52 (c : Dev nD) : Prog (TpuEff nD τ sig (Elt F) (Pipeline.Sig Λ₀ (Fin 0) fun p => (pcfgs (F := F) p).Adm) .tc) PUnit := main_part52 (F := F) c >>= fun _ => tailProg53 c
abbrev tailProg51 (c : Dev nD) : Prog (TpuEff nD τ sig (Elt F) (Pipeline.Sig Λ₀ (Fin 0) fun p => (pcfgs (F := F) p).Adm) .tc) PUnit := main_part51 (F := F) c >>= fun _ => tailProg52 c
abbrev tailProg50 (c : Dev nD) : Prog (TpuEff nD τ sig (Elt F) (Pipeline.Sig Λ₀ (Fin 0) fun p => (pcfgs (F := F) p).Adm) .tc) PUnit := main_part50 (F := F) c >>= fun _ => tailProg51 c
abbrev tailProg49 (c : Dev nD) : Prog (TpuEff nD τ sig (Elt F) (Pipeline.Sig Λ₀ (Fin 0) fun p => (pcfgs (F := F) p).Adm) .tc) PUnit := main_part49 (F := F) c >>= fun _ => tailProg50 c
abbrev tailProg48 (c : Dev nD) : Prog (TpuEff nD τ sig (Elt F) (Pipeline.Sig Λ₀ (Fin 0) fun p => (pcfgs (F := F) p).Adm) .tc) PUnit := main_part48 (F := F) c >>= fun _ => tailProg49 c
abbrev tailProg47 (c : Dev nD) : Prog (TpuEff nD τ sig (Elt F) (Pipeline.Sig Λ₀ (Fin 0) fun p => (pcfgs (F := F) p).Adm) .tc) PUnit := main_part47 (F := F) c >>= fun _ => tailProg48 c
abbrev tailProg46 (c : Dev nD) : Prog (TpuEff nD τ sig (Elt F) (Pipeline.Sig Λ₀ (Fin 0) fun p => (pcfgs (F := F) p).Adm) .tc) PUnit := main_part46 (F := F) c >>= fun _ => tailProg47 c
abbrev tailProg45 (c : Dev nD) : Prog (TpuEff nD τ sig (Elt F) (Pipeline.Sig Λ₀ (Fin 0) fun p => (pcfgs (F := F) p).Adm) .tc) PUnit := main_part45 (F := F) c >>= fun _ => tailProg46 c
abbrev tailProg44 (c : Dev nD) : Prog (TpuEff nD τ sig (Elt F) (Pipeline.Sig Λ₀ (Fin 0) fun p => (pcfgs (F := F) p).Adm) .tc) PUnit := main_part44 (F := F) c >>= fun _ => tailProg45 c
abbrev tailProg43 (c : Dev nD) : Prog (TpuEff nD τ sig (Elt F) (Pipeline.Sig Λ₀ (Fin 0) fun p => (pcfgs (F := F) p).Adm) .tc) PUnit := main_part43 (F := F) c >>= fun _ => tailProg44 c
abbrev tailProg42 (c : Dev nD) : Prog (TpuEff nD τ sig (Elt F) (Pipeline.Sig Λ₀ (Fin 0) fun p => (pcfgs (F := F) p).Adm) .tc) PUnit := main_part42 (F := F) c >>= fun _ => tailProg43 c
abbrev tailProg41 (c : Dev nD) : Prog (TpuEff nD τ sig (Elt F) (Pipeline.Sig Λ₀ (Fin 0) fun p => (pcfgs (F := F) p).Adm) .tc) PUnit := main_part41 (F := F) c >>= fun _ => tailProg42 c
abbrev tailProg40 (c : Dev nD) : Prog (TpuEff nD τ sig (Elt F) (Pipeline.Sig Λ₀ (Fin 0) fun p => (pcfgs (F := F) p).Adm) .tc) PUnit := main_part40 (F := F) c >>= fun _ => tailProg41 c
abbrev tailProg39 (c : Dev nD) : Prog (TpuEff nD τ sig (Elt F) (Pipeline.Sig Λ₀ (Fin 0) fun p => (pcfgs (F := F) p).Adm) .tc) PUnit := main_part39 (F := F) c >>= fun _ => tailProg40 c
abbrev tailProg38 (c : Dev nD) : Prog (TpuEff nD τ sig (Elt F) (Pipeline.Sig Λ₀ (Fin 0) fun p => (pcfgs (F := F) p).Adm) .tc) PUnit := main_part38 (F := F) c >>= fun _ => tailProg39 c
abbrev tailProg37 (c : Dev nD) : Prog (TpuEff nD τ sig (Elt F) (Pipeline.Sig Λ₀ (Fin 0) fun p => (pcfgs (F := F) p).Adm) .tc) PUnit := main_part37 (F := F) c >>= fun _ => tailProg38 c
abbrev tailProg36 (c : Dev nD) : Prog (TpuEff nD τ sig (Elt F) (Pipeline.Sig Λ₀ (Fin 0) fun p => (pcfgs (F := F) p).Adm) .tc) PUnit := main_part36 (F := F) c >>= fun _ => tailProg37 c
abbrev tailProg35 (c : Dev nD) : Prog (TpuEff nD τ sig (Elt F) (Pipeline.Sig Λ₀ (Fin 0) fun p => (pcfgs (F := F) p).Adm) .tc) PUnit := main_part35 (F := F) c >>= fun _ => tailProg36 c
abbrev tailProg34 (c : Dev nD) : Prog (TpuEff nD τ sig (Elt F) (Pipeline.Sig Λ₀ (Fin 0) fun p => (pcfgs (F := F) p).Adm) .tc) PUnit := main_part34 (F := F) c >>= fun _ => tailProg35 c
abbrev tailProg33 (c : Dev nD) : Prog (TpuEff nD τ sig (Elt F) (Pipeline.Sig Λ₀ (Fin 0) fun p => (pcfgs (F := F) p).Adm) .tc) PUnit := main_part33 (F := F) c >>= fun _ => tailProg34 c
abbrev tailProg32 (c : Dev nD) : Prog (TpuEff nD τ sig (Elt F) (Pipeline.Sig Λ₀ (Fin 0) fun p => (pcfgs (F := F) p).Adm) .tc) PUnit := main_part32 (F := F) c >>= fun _ => tailProg33 c
abbrev tailProg31 (c : Dev nD) : Prog (TpuEff nD τ sig (Elt F) (Pipeline.Sig Λ₀ (Fin 0) fun p => (pcfgs (F := F) p).Adm) .tc) PUnit := main_part31 (F := F) c >>= fun _ => tailProg32 c
abbrev tailProg30 (c : Dev nD) : Prog (TpuEff nD τ sig (Elt F) (Pipeline.Sig Λ₀ (Fin 0) fun p => (pcfgs (F := F) p).Adm) .tc) PUnit := main_part30 (F := F) c >>= fun _ => tailProg31 c
abbrev tailProg29 (c : Dev nD) : Prog (TpuEff nD τ sig (Elt F) (Pipeline.Sig Λ₀ (Fin 0) fun p => (pcfgs (F := F) p).Adm) .tc) PUnit := main_part29 (F := F) c >>= fun _ => tailProg30 c
abbrev tailProg28 (c : Dev nD) : Prog (TpuEff nD τ sig (Elt F) (Pipeline.Sig Λ₀ (Fin 0) fun p => (pcfgs (F := F) p).Adm) .tc) PUnit := main_part28 (F := F) c >>= fun _ => tailProg29 c
abbrev tailProg27 (c : Dev nD) : Prog (TpuEff nD τ sig (Elt F) (Pipeline.Sig Λ₀ (Fin 0) fun p => (pcfgs (F := F) p).Adm) .tc) PUnit := main_part27 (F := F) c >>= fun _ => tailProg28 c
abbrev tailProg26 (c : Dev nD) : Prog (TpuEff nD τ sig (Elt F) (Pipeline.Sig Λ₀ (Fin 0) fun p => (pcfgs (F := F) p).Adm) .tc) PUnit := main_part26 (F := F) c >>= fun _ => tailProg27 c
abbrev tailProg25 (c : Dev nD) : Prog (TpuEff nD τ sig (Elt F) (Pipeline.Sig Λ₀ (Fin 0) fun p => (pcfgs (F := F) p).Adm) .tc) PUnit := main_part25 (F := F) c >>= fun _ => tailProg26 c
abbrev tailProg24 (c : Dev nD) : Prog (TpuEff nD τ sig (Elt F) (Pipeline.Sig Λ₀ (Fin 0) fun p => (pcfgs (F := F) p).Adm) .tc) PUnit := main_part24 (F := F) c >>= fun _ => tailProg25 c
abbrev tailProg23 (c : Dev nD) : Prog (TpuEff nD τ sig (Elt F) (Pipeline.Sig Λ₀ (Fin 0) fun p => (pcfgs (F := F) p).Adm) .tc) PUnit := main_part23 (F := F) c >>= fun _ => tailProg24 c
abbrev tailProg22 (c : Dev nD) : Prog (TpuEff nD τ sig (Elt F) (Pipeline.Sig Λ₀ (Fin 0) fun p => (pcfgs (F := F) p).Adm) .tc) PUnit := main_part22 (F := F) c >>= fun _ => tailProg23 c
abbrev tailProg21 (c : Dev nD) : Prog (TpuEff nD τ sig (Elt F) (Pipeline.Sig Λ₀ (Fin 0) fun p => (pcfgs (F := F) p).Adm) .tc) PUnit := main_part21 (F := F) c >>= fun _ => tailProg22 c
abbrev tailProg20 (c : Dev nD) : Prog (TpuEff nD τ sig (Elt F) (Pipeline.Sig Λ₀ (Fin 0) fun p => (pcfgs (F := F) p).Adm) .tc) PUnit := main_part20 (F := F) c >>= fun _ => tailProg21 c
abbrev tailProg19 (c : Dev nD) : Prog (TpuEff nD τ sig (Elt F) (Pipeline.Sig Λ₀ (Fin 0) fun p => (pcfgs (F := F) p).Adm) .tc) PUnit := main_part19 (F := F) c >>= fun _ => tailProg20 c
abbrev tailProg18 (c : Dev nD) : Prog (TpuEff nD τ sig (Elt F) (Pipeline.Sig Λ₀ (Fin 0) fun p => (pcfgs (F := F) p).Adm) .tc) PUnit := main_part18 (F := F) c >>= fun _ => tailProg19 c
abbrev tailProg17 (c : Dev nD) : Prog (TpuEff nD τ sig (Elt F) (Pipeline.Sig Λ₀ (Fin 0) fun p => (pcfgs (F := F) p).Adm) .tc) PUnit := main_part17 (F := F) c >>= fun _ => tailProg18 c
abbrev tailProg16 (c : Dev nD) : Prog (TpuEff nD τ sig (Elt F) (Pipeline.Sig Λ₀ (Fin 0) fun p => (pcfgs (F := F) p).Adm) .tc) PUnit := main_part16 (F := F) c >>= fun _ => tailProg17 c
abbrev tailProg15 (c : Dev nD) : Prog (TpuEff nD τ sig (Elt F) (Pipeline.Sig Λ₀ (Fin 0) fun p => (pcfgs (F := F) p).Adm) .tc) PUnit := main_part15 (F := F) c >>= fun _ => tailProg16 c
abbrev tailProg14 (c : Dev nD) : Prog (TpuEff nD τ sig (Elt F) (Pipeline.Sig Λ₀ (Fin 0) fun p => (pcfgs (F := F) p).Adm) .tc) PUnit := main_part14 (F := F) c >>= fun _ => tailProg15 c
abbrev tailProg13 (c : Dev nD) : Prog (TpuEff nD τ sig (Elt F) (Pipeline.Sig Λ₀ (Fin 0) fun p => (pcfgs (F := F) p).Adm) .tc) PUnit := main_part13 (F := F) c >>= fun _ => tailProg14 c
abbrev tailProg12 (c : Dev nD) : Prog (TpuEff nD τ sig (Elt F) (Pipeline.Sig Λ₀ (Fin 0) fun p => (pcfgs (F := F) p).Adm) .tc) PUnit := main_part12 (F := F) c >>= fun _ => tailProg13 c
abbrev tailProg11 (c : Dev nD) : Prog (TpuEff nD τ sig (Elt F) (Pipeline.Sig Λ₀ (Fin 0) fun p => (pcfgs (F := F) p).Adm) .tc) PUnit := main_part11 (F := F) c >>= fun _ => tailProg12 c
abbrev tailProg10 (c : Dev nD) : Prog (TpuEff nD τ sig (Elt F) (Pipeline.Sig Λ₀ (Fin 0) fun p => (pcfgs (F := F) p).Adm) .tc) PUnit := main_part10 (F := F) c >>= fun _ => tailProg11 c
abbrev tailProg9 (c : Dev nD) : Prog (TpuEff nD τ sig (Elt F) (Pipeline.Sig Λ₀ (Fin 0) fun p => (pcfgs (F := F) p).Adm) .tc) PUnit := main_part9 (F := F) c >>= fun _ => tailProg10 c
abbrev tailProg8 (c : Dev nD) : Prog (TpuEff nD τ sig (Elt F) (Pipeline.Sig Λ₀ (Fin 0) fun p => (pcfgs (F := F) p).Adm) .tc) PUnit := main_part8 (F := F) c >>= fun _ => tailProg9 c
abbrev tailProg7 (c : Dev nD) : Prog (TpuEff nD τ sig (Elt F) (Pipeline.Sig Λ₀ (Fin 0) fun p => (pcfgs (F := F) p).Adm) .tc) PUnit := main_part7 (F := F) c >>= fun _ => tailProg8 c
abbrev tailProg6 (c : Dev nD) : Prog (TpuEff nD τ sig (Elt F) (Pipeline.Sig Λ₀ (Fin 0) fun p => (pcfgs (F := F) p).Adm) .tc) PUnit := main_part6 (F := F) c >>= fun _ => tailProg7 c
abbrev tailProg5 (c : Dev nD) : Prog (TpuEff nD τ sig (Elt F) (Pipeline.Sig Λ₀ (Fin 0) fun p => (pcfgs (F := F) p).Adm) .tc) PUnit := main_part5 (F := F) c >>= fun _ => tailProg6 c
abbrev tailProg4 (c : Dev nD) : Prog (TpuEff nD τ sig (Elt F) (Pipeline.Sig Λ₀ (Fin 0) fun p => (pcfgs (F := F) p).Adm) .tc) PUnit := main_part4 (F := F) c >>= fun _ => tailProg5 c
abbrev tailProg3 (c : Dev nD) : Prog (TpuEff nD τ sig (Elt F) (Pipeline.Sig Λ₀ (Fin 0) fun p => (pcfgs (F := F) p).Adm) .tc) PUnit := main_part3 (F := F) c >>= fun _ => tailProg4 c
abbrev tailProg2 (c : Dev nD) : Prog (TpuEff nD τ sig (Elt F) (Pipeline.Sig Λ₀ (Fin 0) fun p => (pcfgs (F := F) p).Adm) .tc) PUnit := main_part2 (F := F) c >>= fun _ => tailProg3 c
abbrev tailProg1 (c : Dev nD) : Prog (TpuEff nD τ sig (Elt F) (Pipeline.Sig Λ₀ (Fin 0) fun p => (pcfgs (F := F) p).Adm) .tc) PUnit := main_part1 (F := F) c >>= fun _ => tailProg2 c
abbrev tailProg0 (c : Dev nD) : Prog (TpuEff nD τ sig (Elt F) (Pipeline.Sig Λ₀ (Fin 0) fun p => (pcfgs (F := F) p).Adm) .tc) PUnit := main_part0 (F := F) c >>= fun _ => tailProg1 c

theorem main_tail (c : Dev nD) : main (F := F) c = tailProg0 c := rfl

end Cert.ReferenceIdeal.RefRun

end
-- ==== Proof.RefTableWin00.lean ====
/-
  The windows 0 … 23 of the printed @main are the runs of these stretches of the step lists.
-/
import proofs.«900482_g7700000000000483_dist_ssm_v7x_xy2x2_y_b4_s256_d256_n16_f32_1_alg».proof.Proof.RefTableStep00
import proofs.«900482_g7700000000000483_dist_ssm_v7x_xy2x2_y_b4_s256_d256_n16_f32_1_alg».proof.Proof.RefTableStep01
import proofs.«900482_g7700000000000483_dist_ssm_v7x_xy2x2_y_b4_s256_d256_n16_f32_1_alg».proof.Proof.RefTableStep02
import proofs.«900482_g7700000000000483_dist_ssm_v7x_xy2x2_y_b4_s256_d256_n16_f32_1_alg».proof.Proof.RefTableStep03
import proofs.«900482_g7700000000000483_dist_ssm_v7x_xy2x2_y_b4_s256_d256_n16_f32_1_alg».proof.Proof.RefTableStep04
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part0_eq (c : Dev nD) : main_part0 (F := F) c = seq (preOps ++ (stepOps0 ++ (stepOps1 ++ ((stepOps2.take 10))))) := rfl
theorem main_part1_eq (c : Dev nD) : main_part1 (F := F) c = seq ((stepOps2.drop 10) ++ (stepOps3 ++ (stepOps4 ++ ((stepOps5.take 4))))) := rfl
theorem main_part2_eq (c : Dev nD) : main_part2 (F := F) c = seq ((stepOps5.drop 4) ++ (stepOps6 ++ ((stepOps7.take 20)))) := rfl
theorem main_part3_eq (c : Dev nD) : main_part3 (F := F) c = seq ((stepOps7.drop 20) ++ (stepOps8 ++ (stepOps9 ++ ((stepOps10.take 14))))) := rfl
theorem main_part4_eq (c : Dev nD) : main_part4 (F := F) c = seq ((stepOps10.drop 14) ++ (stepOps11 ++ (stepOps12 ++ ((stepOps13.take 8))))) := rfl
theorem main_part5_eq (c : Dev nD) : main_part5 (F := F) c = seq ((stepOps13.drop 8) ++ (stepOps14 ++ (stepOps15 ++ ((stepOps16.take 2))))) := rfl
theorem main_part6_eq (c : Dev nD) : main_part6 (F := F) c = seq ((stepOps16.drop 2) ++ (stepOps17 ++ ((stepOps18.take 18)))) := rfl
theorem main_part7_eq (c : Dev nD) : main_part7 (F := F) c = seq ((stepOps18.drop 18) ++ (stepOps19 ++ (stepOps20 ++ ((stepOps21.take 12))))) := rfl
theorem main_part8_eq (c : Dev nD) : main_part8 (F := F) c = seq ((stepOps21.drop 12) ++ (stepOps22 ++ (stepOps23 ++ ((stepOps24.take 6))))) := rfl
theorem main_part9_eq (c : Dev nD) : main_part9 (F := F) c = seq ((stepOps24.drop 6) ++ (stepOps25 ++ (stepOps26))) := rfl
theorem main_part10_eq (c : Dev nD) : main_part10 (F := F) c = seq (stepOps27 ++ (stepOps28 ++ ((stepOps29.take 16)))) := rfl
theorem main_part11_eq (c : Dev nD) : main_part11 (F := F) c = seq ((stepOps29.drop 16) ++ (stepOps30 ++ (stepOps31 ++ ((stepOps32.take 10))))) := rfl
theorem main_part12_eq (c : Dev nD) : main_part12 (F := F) c = seq ((stepOps32.drop 10) ++ (stepOps33 ++ (stepOps34 ++ ((stepOps35.take 4))))) := rfl
theorem main_part13_eq (c : Dev nD) : main_part13 (F := F) c = seq ((stepOps35.drop 4) ++ (stepOps36 ++ ((stepOps37.take 20)))) := rfl
theorem main_part14_eq (c : Dev nD) : main_part14 (F := F) c = seq ((stepOps37.drop 20) ++ (stepOps38 ++ (stepOps39 ++ ((stepOps40.take 14))))) := rfl
theorem main_part15_eq (c : Dev nD) : main_part15 (F := F) c = seq ((stepOps40.drop 14) ++ (stepOps41 ++ (stepOps42 ++ ((stepOps43.take 8))))) := rfl
theorem main_part16_eq (c : Dev nD) : main_part16 (F := F) c = seq ((stepOps43.drop 8) ++ (stepOps44 ++ (stepOps45 ++ ((stepOps46.take 2))))) := rfl
theorem main_part17_eq (c : Dev nD) : main_part17 (F := F) c = seq ((stepOps46.drop 2) ++ (stepOps47 ++ ((stepOps48.take 18)))) := rfl
theorem main_part18_eq (c : Dev nD) : main_part18 (F := F) c = seq ((stepOps48.drop 18) ++ (stepOps49 ++ (stepOps50 ++ ((stepOps51.take 12))))) := rfl
theorem main_part19_eq (c : Dev nD) : main_part19 (F := F) c = seq ((stepOps51.drop 12) ++ (stepOps52 ++ (stepOps53 ++ ((stepOps54.take 6))))) := rfl
theorem main_part20_eq (c : Dev nD) : main_part20 (F := F) c = seq ((stepOps54.drop 6) ++ (stepOps55 ++ (stepOps56))) := rfl
theorem main_part21_eq (c : Dev nD) : main_part21 (F := F) c = seq (stepOps57 ++ (stepOps58 ++ ((stepOps59.take 16)))) := rfl
theorem main_part22_eq (c : Dev nD) : main_part22 (F := F) c = seq ((stepOps59.drop 16) ++ (stepOps60 ++ (stepOps61 ++ ((stepOps62.take 10))))) := rfl
theorem main_part23_eq (c : Dev nD) : main_part23 (F := F) c = seq ((stepOps62.drop 10) ++ (stepOps63 ++ (stepOps64 ++ ((stepOps65.take 4))))) := rfl

end Cert.ReferenceIdeal.RefRun

end
-- ==== Proof.RefTableWin01.lean ====
/-
  The windows 24 … 47 of the printed @main are the runs of these stretches of the step lists.
-/
import proofs.«900482_g7700000000000483_dist_ssm_v7x_xy2x2_y_b4_s256_d256_n16_f32_1_alg».proof.Proof.RefTableStep04
import proofs.«900482_g7700000000000483_dist_ssm_v7x_xy2x2_y_b4_s256_d256_n16_f32_1_alg».proof.Proof.RefTableStep05
import proofs.«900482_g7700000000000483_dist_ssm_v7x_xy2x2_y_b4_s256_d256_n16_f32_1_alg».proof.Proof.RefTableStep06
import proofs.«900482_g7700000000000483_dist_ssm_v7x_xy2x2_y_b4_s256_d256_n16_f32_1_alg».proof.Proof.RefTableStep07
import proofs.«900482_g7700000000000483_dist_ssm_v7x_xy2x2_y_b4_s256_d256_n16_f32_1_alg».proof.Proof.RefTableStep08
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part24_eq (c : Dev nD) : main_part24 (F := F) c = seq ((stepOps65.drop 4) ++ (stepOps66 ++ ((stepOps67.take 20)))) := rfl
theorem main_part25_eq (c : Dev nD) : main_part25 (F := F) c = seq ((stepOps67.drop 20) ++ (stepOps68 ++ (stepOps69 ++ ((stepOps70.take 14))))) := rfl
theorem main_part26_eq (c : Dev nD) : main_part26 (F := F) c = seq ((stepOps70.drop 14) ++ (stepOps71 ++ (stepOps72 ++ ((stepOps73.take 8))))) := rfl
theorem main_part27_eq (c : Dev nD) : main_part27 (F := F) c = seq ((stepOps73.drop 8) ++ (stepOps74 ++ (stepOps75 ++ ((stepOps76.take 2))))) := rfl
theorem main_part28_eq (c : Dev nD) : main_part28 (F := F) c = seq ((stepOps76.drop 2) ++ (stepOps77 ++ ((stepOps78.take 18)))) := rfl
theorem main_part29_eq (c : Dev nD) : main_part29 (F := F) c = seq ((stepOps78.drop 18) ++ (stepOps79 ++ (stepOps80 ++ ((stepOps81.take 12))))) := rfl
theorem main_part30_eq (c : Dev nD) : main_part30 (F := F) c = seq ((stepOps81.drop 12) ++ (stepOps82 ++ (stepOps83 ++ ((stepOps84.take 6))))) := rfl
theorem main_part31_eq (c : Dev nD) : main_part31 (F := F) c = seq ((stepOps84.drop 6) ++ (stepOps85 ++ (stepOps86))) := rfl
theorem main_part32_eq (c : Dev nD) : main_part32 (F := F) c = seq (stepOps87 ++ (stepOps88 ++ ((stepOps89.take 16)))) := rfl
theorem main_part33_eq (c : Dev nD) : main_part33 (F := F) c = seq ((stepOps89.drop 16) ++ (stepOps90 ++ (stepOps91 ++ ((stepOps92.take 10))))) := rfl
theorem main_part34_eq (c : Dev nD) : main_part34 (F := F) c = seq ((stepOps92.drop 10) ++ (stepOps93 ++ (stepOps94 ++ ((stepOps95.take 4))))) := rfl
theorem main_part35_eq (c : Dev nD) : main_part35 (F := F) c = seq ((stepOps95.drop 4) ++ (stepOps96 ++ ((stepOps97.take 20)))) := rfl
theorem main_part36_eq (c : Dev nD) : main_part36 (F := F) c = seq ((stepOps97.drop 20) ++ (stepOps98 ++ (stepOps99 ++ ((stepOps100.take 14))))) := rfl
theorem main_part37_eq (c : Dev nD) : main_part37 (F := F) c = seq ((stepOps100.drop 14) ++ (stepOps101 ++ (stepOps102 ++ ((stepOps103.take 8))))) := rfl
theorem main_part38_eq (c : Dev nD) : main_part38 (F := F) c = seq ((stepOps103.drop 8) ++ (stepOps104 ++ (stepOps105 ++ ((stepOps106.take 2))))) := rfl
theorem main_part39_eq (c : Dev nD) : main_part39 (F := F) c = seq ((stepOps106.drop 2) ++ (stepOps107 ++ ((stepOps108.take 18)))) := rfl
theorem main_part40_eq (c : Dev nD) : main_part40 (F := F) c = seq ((stepOps108.drop 18) ++ (stepOps109 ++ (stepOps110 ++ ((stepOps111.take 12))))) := rfl
theorem main_part41_eq (c : Dev nD) : main_part41 (F := F) c = seq ((stepOps111.drop 12) ++ (stepOps112 ++ (stepOps113 ++ ((stepOps114.take 6))))) := rfl
theorem main_part42_eq (c : Dev nD) : main_part42 (F := F) c = seq ((stepOps114.drop 6) ++ (stepOps115 ++ (stepOps116))) := rfl
theorem main_part43_eq (c : Dev nD) : main_part43 (F := F) c = seq (stepOps117 ++ (stepOps118 ++ ((stepOps119.take 16)))) := rfl
theorem main_part44_eq (c : Dev nD) : main_part44 (F := F) c = seq ((stepOps119.drop 16) ++ (stepOps120 ++ (stepOps121 ++ ((stepOps122.take 10))))) := rfl
theorem main_part45_eq (c : Dev nD) : main_part45 (F := F) c = seq ((stepOps122.drop 10) ++ (stepOps123 ++ (stepOps124 ++ ((stepOps125.take 4))))) := rfl
theorem main_part46_eq (c : Dev nD) : main_part46 (F := F) c = seq ((stepOps125.drop 4) ++ (stepOps126 ++ ((stepOps127.take 20)))) := rfl
theorem main_part47_eq (c : Dev nD) : main_part47 (F := F) c = seq ((stepOps127.drop 20) ++ (stepOps128 ++ (stepOps129 ++ ((stepOps130.take 14))))) := rfl

end Cert.ReferenceIdeal.RefRun

end
-- ==== Proof.RefTableWin02.lean ====
/-
  The windows 48 … 71 of the printed @main are the runs of these stretches of the step lists.
-/
import proofs.«900482_g7700000000000483_dist_ssm_v7x_xy2x2_y_b4_s256_d256_n16_f32_1_alg».proof.Proof.RefTableStep08
import proofs.«900482_g7700000000000483_dist_ssm_v7x_xy2x2_y_b4_s256_d256_n16_f32_1_alg».proof.Proof.RefTableStep09
import proofs.«900482_g7700000000000483_dist_ssm_v7x_xy2x2_y_b4_s256_d256_n16_f32_1_alg».proof.Proof.RefTableStep10
import proofs.«900482_g7700000000000483_dist_ssm_v7x_xy2x2_y_b4_s256_d256_n16_f32_1_alg».proof.Proof.RefTableStep11
import proofs.«900482_g7700000000000483_dist_ssm_v7x_xy2x2_y_b4_s256_d256_n16_f32_1_alg».proof.Proof.RefTableStep12
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part48_eq (c : Dev nD) : main_part48 (F := F) c = seq ((stepOps130.drop 14) ++ (stepOps131 ++ (stepOps132 ++ ((stepOps133.take 8))))) := rfl
theorem main_part49_eq (c : Dev nD) : main_part49 (F := F) c = seq ((stepOps133.drop 8) ++ (stepOps134 ++ (stepOps135 ++ ((stepOps136.take 2))))) := rfl
theorem main_part50_eq (c : Dev nD) : main_part50 (F := F) c = seq ((stepOps136.drop 2) ++ (stepOps137 ++ ((stepOps138.take 18)))) := rfl
theorem main_part51_eq (c : Dev nD) : main_part51 (F := F) c = seq ((stepOps138.drop 18) ++ (stepOps139 ++ (stepOps140 ++ ((stepOps141.take 12))))) := rfl
theorem main_part52_eq (c : Dev nD) : main_part52 (F := F) c = seq ((stepOps141.drop 12) ++ (stepOps142 ++ (stepOps143 ++ ((stepOps144.take 6))))) := rfl
theorem main_part53_eq (c : Dev nD) : main_part53 (F := F) c = seq ((stepOps144.drop 6) ++ (stepOps145 ++ (stepOps146))) := rfl
theorem main_part54_eq (c : Dev nD) : main_part54 (F := F) c = seq (stepOps147 ++ (stepOps148 ++ ((stepOps149.take 16)))) := rfl
theorem main_part55_eq (c : Dev nD) : main_part55 (F := F) c = seq ((stepOps149.drop 16) ++ (stepOps150 ++ (stepOps151 ++ ((stepOps152.take 10))))) := rfl
theorem main_part56_eq (c : Dev nD) : main_part56 (F := F) c = seq ((stepOps152.drop 10) ++ (stepOps153 ++ (stepOps154 ++ ((stepOps155.take 4))))) := rfl
theorem main_part57_eq (c : Dev nD) : main_part57 (F := F) c = seq ((stepOps155.drop 4) ++ (stepOps156 ++ ((stepOps157.take 20)))) := rfl
theorem main_part58_eq (c : Dev nD) : main_part58 (F := F) c = seq ((stepOps157.drop 20) ++ (stepOps158 ++ (stepOps159 ++ ((stepOps160.take 14))))) := rfl
theorem main_part59_eq (c : Dev nD) : main_part59 (F := F) c = seq ((stepOps160.drop 14) ++ (stepOps161 ++ (stepOps162 ++ ((stepOps163.take 8))))) := rfl
theorem main_part60_eq (c : Dev nD) : main_part60 (F := F) c = seq ((stepOps163.drop 8) ++ (stepOps164 ++ (stepOps165 ++ ((stepOps166.take 2))))) := rfl
theorem main_part61_eq (c : Dev nD) : main_part61 (F := F) c = seq ((stepOps166.drop 2) ++ (stepOps167 ++ ((stepOps168.take 18)))) := rfl
theorem main_part62_eq (c : Dev nD) : main_part62 (F := F) c = seq ((stepOps168.drop 18) ++ (stepOps169 ++ (stepOps170 ++ ((stepOps171.take 12))))) := rfl
theorem main_part63_eq (c : Dev nD) : main_part63 (F := F) c = seq ((stepOps171.drop 12) ++ (stepOps172 ++ (stepOps173 ++ ((stepOps174.take 6))))) := rfl
theorem main_part64_eq (c : Dev nD) : main_part64 (F := F) c = seq ((stepOps174.drop 6) ++ (stepOps175 ++ (stepOps176))) := rfl
theorem main_part65_eq (c : Dev nD) : main_part65 (F := F) c = seq (stepOps177 ++ (stepOps178 ++ ((stepOps179.take 16)))) := rfl
theorem main_part66_eq (c : Dev nD) : main_part66 (F := F) c = seq ((stepOps179.drop 16) ++ (stepOps180 ++ (stepOps181 ++ ((stepOps182.take 10))))) := rfl
theorem main_part67_eq (c : Dev nD) : main_part67 (F := F) c = seq ((stepOps182.drop 10) ++ (stepOps183 ++ (stepOps184 ++ ((stepOps185.take 4))))) := rfl
theorem main_part68_eq (c : Dev nD) : main_part68 (F := F) c = seq ((stepOps185.drop 4) ++ (stepOps186 ++ ((stepOps187.take 20)))) := rfl
theorem main_part69_eq (c : Dev nD) : main_part69 (F := F) c = seq ((stepOps187.drop 20) ++ (stepOps188 ++ (stepOps189 ++ ((stepOps190.take 14))))) := rfl
theorem main_part70_eq (c : Dev nD) : main_part70 (F := F) c = seq ((stepOps190.drop 14) ++ (stepOps191 ++ (stepOps192 ++ ((stepOps193.take 8))))) := rfl
theorem main_part71_eq (c : Dev nD) : main_part71 (F := F) c = seq ((stepOps193.drop 8) ++ (stepOps194 ++ (stepOps195 ++ ((stepOps196.take 2))))) := rfl

end Cert.ReferenceIdeal.RefRun

end
-- ==== Proof.RefTableWin03.lean ====
/-
  The windows 72 … 95 of the printed @main are the runs of these stretches of the step lists.
-/
import proofs.«900482_g7700000000000483_dist_ssm_v7x_xy2x2_y_b4_s256_d256_n16_f32_1_alg».proof.Proof.RefTableStep12
import proofs.«900482_g7700000000000483_dist_ssm_v7x_xy2x2_y_b4_s256_d256_n16_f32_1_alg».proof.Proof.RefTableStep13
import proofs.«900482_g7700000000000483_dist_ssm_v7x_xy2x2_y_b4_s256_d256_n16_f32_1_alg».proof.Proof.RefTableStep14
import proofs.«900482_g7700000000000483_dist_ssm_v7x_xy2x2_y_b4_s256_d256_n16_f32_1_alg».proof.Proof.RefTableStep15
import proofs.«900482_g7700000000000483_dist_ssm_v7x_xy2x2_y_b4_s256_d256_n16_f32_1_alg».proof.Proof.RefTableStep16
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part72_eq (c : Dev nD) : main_part72 (F := F) c = seq ((stepOps196.drop 2) ++ (stepOps197 ++ ((stepOps198.take 18)))) := rfl
theorem main_part73_eq (c : Dev nD) : main_part73 (F := F) c = seq ((stepOps198.drop 18) ++ (stepOps199 ++ (stepOps200 ++ ((stepOps201.take 12))))) := rfl
theorem main_part74_eq (c : Dev nD) : main_part74 (F := F) c = seq ((stepOps201.drop 12) ++ (stepOps202 ++ (stepOps203 ++ ((stepOps204.take 6))))) := rfl
theorem main_part75_eq (c : Dev nD) : main_part75 (F := F) c = seq ((stepOps204.drop 6) ++ (stepOps205 ++ (stepOps206))) := rfl
theorem main_part76_eq (c : Dev nD) : main_part76 (F := F) c = seq (stepOps207 ++ (stepOps208 ++ ((stepOps209.take 16)))) := rfl
theorem main_part77_eq (c : Dev nD) : main_part77 (F := F) c = seq ((stepOps209.drop 16) ++ (stepOps210 ++ (stepOps211 ++ ((stepOps212.take 10))))) := rfl
theorem main_part78_eq (c : Dev nD) : main_part78 (F := F) c = seq ((stepOps212.drop 10) ++ (stepOps213 ++ (stepOps214 ++ ((stepOps215.take 4))))) := rfl
theorem main_part79_eq (c : Dev nD) : main_part79 (F := F) c = seq ((stepOps215.drop 4) ++ (stepOps216 ++ ((stepOps217.take 20)))) := rfl
theorem main_part80_eq (c : Dev nD) : main_part80 (F := F) c = seq ((stepOps217.drop 20) ++ (stepOps218 ++ (stepOps219 ++ ((stepOps220.take 14))))) := rfl
theorem main_part81_eq (c : Dev nD) : main_part81 (F := F) c = seq ((stepOps220.drop 14) ++ (stepOps221 ++ (stepOps222 ++ ((stepOps223.take 8))))) := rfl
theorem main_part82_eq (c : Dev nD) : main_part82 (F := F) c = seq ((stepOps223.drop 8) ++ (stepOps224 ++ (stepOps225 ++ ((stepOps226.take 2))))) := rfl
theorem main_part83_eq (c : Dev nD) : main_part83 (F := F) c = seq ((stepOps226.drop 2) ++ (stepOps227 ++ ((stepOps228.take 18)))) := rfl
theorem main_part84_eq (c : Dev nD) : main_part84 (F := F) c = seq ((stepOps228.drop 18) ++ (stepOps229 ++ (stepOps230 ++ ((stepOps231.take 12))))) := rfl
theorem main_part85_eq (c : Dev nD) : main_part85 (F := F) c = seq ((stepOps231.drop 12) ++ (stepOps232 ++ (stepOps233 ++ ((stepOps234.take 6))))) := rfl
theorem main_part86_eq (c : Dev nD) : main_part86 (F := F) c = seq ((stepOps234.drop 6) ++ (stepOps235 ++ (stepOps236))) := rfl
theorem main_part87_eq (c : Dev nD) : main_part87 (F := F) c = seq (stepOps237 ++ (stepOps238 ++ ((stepOps239.take 16)))) := rfl
theorem main_part88_eq (c : Dev nD) : main_part88 (F := F) c = seq ((stepOps239.drop 16) ++ (stepOps240 ++ (stepOps241 ++ ((stepOps242.take 10))))) := rfl
theorem main_part89_eq (c : Dev nD) : main_part89 (F := F) c = seq ((stepOps242.drop 10) ++ (stepOps243 ++ (stepOps244 ++ ((stepOps245.take 4))))) := rfl
theorem main_part90_eq (c : Dev nD) : main_part90 (F := F) c = seq ((stepOps245.drop 4) ++ (stepOps246 ++ ((stepOps247.take 20)))) := rfl
theorem main_part91_eq (c : Dev nD) : main_part91 (F := F) c = seq ((stepOps247.drop 20) ++ (stepOps248 ++ (stepOps249 ++ ((stepOps250.take 14))))) := rfl
theorem main_part92_eq (c : Dev nD) : main_part92 (F := F) c = seq ((stepOps250.drop 14) ++ (stepOps251 ++ (stepOps252 ++ ((stepOps253.take 8))))) := rfl
theorem main_part93_eq (c : Dev nD) : main_part93 (F := F) c = seq ((stepOps253.drop 8) ++ (stepOps254 ++ (stepOps255 ++ ((stepOps256.take 2))))) := rfl
theorem main_part94_eq (c : Dev nD) : main_part94 (F := F) c = seq ((stepOps256.drop 2) ++ (stepOps257 ++ ((stepOps258.take 18)))) := rfl
theorem main_part95_eq (c : Dev nD) : main_part95 (F := F) c = seq ((stepOps258.drop 18) ++ (stepOps259 ++ (stepOps260 ++ ((stepOps261.take 12))))) := rfl

end Cert.ReferenceIdeal.RefRun

end
-- ==== Proof.RefTableWin04.lean ====
/-
  The windows 96 … 119 of the printed @main are the runs of these stretches of the step lists.
-/
import proofs.«900482_g7700000000000483_dist_ssm_v7x_xy2x2_y_b4_s256_d256_n16_f32_1_alg».proof.Proof.RefTableStep16
import proofs.«900482_g7700000000000483_dist_ssm_v7x_xy2x2_y_b4_s256_d256_n16_f32_1_alg».proof.Proof.RefTableStep17
import proofs.«900482_g7700000000000483_dist_ssm_v7x_xy2x2_y_b4_s256_d256_n16_f32_1_alg».proof.Proof.RefTableStep18
import proofs.«900482_g7700000000000483_dist_ssm_v7x_xy2x2_y_b4_s256_d256_n16_f32_1_alg».proof.Proof.RefTableStep19
import proofs.«900482_g7700000000000483_dist_ssm_v7x_xy2x2_y_b4_s256_d256_n16_f32_1_alg».proof.Proof.RefTableStep20
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part96_eq (c : Dev nD) : main_part96 (F := F) c = seq ((stepOps261.drop 12) ++ (stepOps262 ++ (stepOps263 ++ ((stepOps264.take 6))))) := rfl
theorem main_part97_eq (c : Dev nD) : main_part97 (F := F) c = seq ((stepOps264.drop 6) ++ (stepOps265 ++ (stepOps266))) := rfl
theorem main_part98_eq (c : Dev nD) : main_part98 (F := F) c = seq (stepOps267 ++ (stepOps268 ++ ((stepOps269.take 16)))) := rfl
theorem main_part99_eq (c : Dev nD) : main_part99 (F := F) c = seq ((stepOps269.drop 16) ++ (stepOps270 ++ (stepOps271 ++ ((stepOps272.take 10))))) := rfl
theorem main_part100_eq (c : Dev nD) : main_part100 (F := F) c = seq ((stepOps272.drop 10) ++ (stepOps273 ++ (stepOps274 ++ ((stepOps275.take 4))))) := rfl
theorem main_part101_eq (c : Dev nD) : main_part101 (F := F) c = seq ((stepOps275.drop 4) ++ (stepOps276 ++ ((stepOps277.take 20)))) := rfl
theorem main_part102_eq (c : Dev nD) : main_part102 (F := F) c = seq ((stepOps277.drop 20) ++ (stepOps278 ++ (stepOps279 ++ ((stepOps280.take 14))))) := rfl
theorem main_part103_eq (c : Dev nD) : main_part103 (F := F) c = seq ((stepOps280.drop 14) ++ (stepOps281 ++ (stepOps282 ++ ((stepOps283.take 8))))) := rfl
theorem main_part104_eq (c : Dev nD) : main_part104 (F := F) c = seq ((stepOps283.drop 8) ++ (stepOps284 ++ (stepOps285 ++ ((stepOps286.take 2))))) := rfl
theorem main_part105_eq (c : Dev nD) : main_part105 (F := F) c = seq ((stepOps286.drop 2) ++ (stepOps287 ++ ((stepOps288.take 18)))) := rfl
theorem main_part106_eq (c : Dev nD) : main_part106 (F := F) c = seq ((stepOps288.drop 18) ++ (stepOps289 ++ (stepOps290 ++ ((stepOps291.take 12))))) := rfl
theorem main_part107_eq (c : Dev nD) : main_part107 (F := F) c = seq ((stepOps291.drop 12) ++ (stepOps292 ++ (stepOps293 ++ ((stepOps294.take 6))))) := rfl
theorem main_part108_eq (c : Dev nD) : main_part108 (F := F) c = seq ((stepOps294.drop 6) ++ (stepOps295 ++ (stepOps296))) := rfl
theorem main_part109_eq (c : Dev nD) : main_part109 (F := F) c = seq (stepOps297 ++ (stepOps298 ++ ((stepOps299.take 16)))) := rfl
theorem main_part110_eq (c : Dev nD) : main_part110 (F := F) c = seq ((stepOps299.drop 16) ++ (stepOps300 ++ (stepOps301 ++ ((stepOps302.take 10))))) := rfl
theorem main_part111_eq (c : Dev nD) : main_part111 (F := F) c = seq ((stepOps302.drop 10) ++ (stepOps303 ++ (stepOps304 ++ ((stepOps305.take 4))))) := rfl
theorem main_part112_eq (c : Dev nD) : main_part112 (F := F) c = seq ((stepOps305.drop 4) ++ (stepOps306 ++ ((stepOps307.take 20)))) := rfl
theorem main_part113_eq (c : Dev nD) : main_part113 (F := F) c = seq ((stepOps307.drop 20) ++ (stepOps308 ++ (stepOps309 ++ ((stepOps310.take 14))))) := rfl
theorem main_part114_eq (c : Dev nD) : main_part114 (F := F) c = seq ((stepOps310.drop 14) ++ (stepOps311 ++ (stepOps312 ++ ((stepOps313.take 8))))) := rfl
theorem main_part115_eq (c : Dev nD) : main_part115 (F := F) c = seq ((stepOps313.drop 8) ++ (stepOps314 ++ (stepOps315 ++ ((stepOps316.take 2))))) := rfl
theorem main_part116_eq (c : Dev nD) : main_part116 (F := F) c = seq ((stepOps316.drop 2) ++ (stepOps317 ++ ((stepOps318.take 18)))) := rfl
theorem main_part117_eq (c : Dev nD) : main_part117 (F := F) c = seq ((stepOps318.drop 18) ++ (stepOps319 ++ (stepOps320 ++ ((stepOps321.take 12))))) := rfl
theorem main_part118_eq (c : Dev nD) : main_part118 (F := F) c = seq ((stepOps321.drop 12) ++ (stepOps322 ++ (stepOps323 ++ ((stepOps324.take 6))))) := rfl
theorem main_part119_eq (c : Dev nD) : main_part119 (F := F) c = seq ((stepOps324.drop 6) ++ (stepOps325 ++ (stepOps326))) := rfl

end Cert.ReferenceIdeal.RefRun

end
-- ==== Proof.RefTableWin05.lean ====
/-
  The windows 120 … 143 of the printed @main are the runs of these stretches of the step lists.
-/
import proofs.«900482_g7700000000000483_dist_ssm_v7x_xy2x2_y_b4_s256_d256_n16_f32_1_alg».proof.Proof.RefTableStep20
import proofs.«900482_g7700000000000483_dist_ssm_v7x_xy2x2_y_b4_s256_d256_n16_f32_1_alg».proof.Proof.RefTableStep21
import proofs.«900482_g7700000000000483_dist_ssm_v7x_xy2x2_y_b4_s256_d256_n16_f32_1_alg».proof.Proof.RefTableStep22
import proofs.«900482_g7700000000000483_dist_ssm_v7x_xy2x2_y_b4_s256_d256_n16_f32_1_alg».proof.Proof.RefTableStep23
import proofs.«900482_g7700000000000483_dist_ssm_v7x_xy2x2_y_b4_s256_d256_n16_f32_1_alg».proof.Proof.RefTableStep24
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part120_eq (c : Dev nD) : main_part120 (F := F) c = seq (stepOps327 ++ (stepOps328 ++ ((stepOps329.take 16)))) := rfl
theorem main_part121_eq (c : Dev nD) : main_part121 (F := F) c = seq ((stepOps329.drop 16) ++ (stepOps330 ++ (stepOps331 ++ ((stepOps332.take 10))))) := rfl
theorem main_part122_eq (c : Dev nD) : main_part122 (F := F) c = seq ((stepOps332.drop 10) ++ (stepOps333 ++ (stepOps334 ++ ((stepOps335.take 4))))) := rfl
theorem main_part123_eq (c : Dev nD) : main_part123 (F := F) c = seq ((stepOps335.drop 4) ++ (stepOps336 ++ ((stepOps337.take 20)))) := rfl
theorem main_part124_eq (c : Dev nD) : main_part124 (F := F) c = seq ((stepOps337.drop 20) ++ (stepOps338 ++ (stepOps339 ++ ((stepOps340.take 14))))) := rfl
theorem main_part125_eq (c : Dev nD) : main_part125 (F := F) c = seq ((stepOps340.drop 14) ++ (stepOps341 ++ (stepOps342 ++ ((stepOps343.take 8))))) := rfl
theorem main_part126_eq (c : Dev nD) : main_part126 (F := F) c = seq ((stepOps343.drop 8) ++ (stepOps344 ++ (stepOps345 ++ ((stepOps346.take 2))))) := rfl
theorem main_part127_eq (c : Dev nD) : main_part127 (F := F) c = seq ((stepOps346.drop 2) ++ (stepOps347 ++ ((stepOps348.take 18)))) := rfl
theorem main_part128_eq (c : Dev nD) : main_part128 (F := F) c = seq ((stepOps348.drop 18) ++ (stepOps349 ++ (stepOps350 ++ ((stepOps351.take 12))))) := rfl
theorem main_part129_eq (c : Dev nD) : main_part129 (F := F) c = seq ((stepOps351.drop 12) ++ (stepOps352 ++ (stepOps353 ++ ((stepOps354.take 6))))) := rfl
theorem main_part130_eq (c : Dev nD) : main_part130 (F := F) c = seq ((stepOps354.drop 6) ++ (stepOps355 ++ (stepOps356))) := rfl
theorem main_part131_eq (c : Dev nD) : main_part131 (F := F) c = seq (stepOps357 ++ (stepOps358 ++ ((stepOps359.take 16)))) := rfl
theorem main_part132_eq (c : Dev nD) : main_part132 (F := F) c = seq ((stepOps359.drop 16) ++ (stepOps360 ++ (stepOps361 ++ ((stepOps362.take 10))))) := rfl
theorem main_part133_eq (c : Dev nD) : main_part133 (F := F) c = seq ((stepOps362.drop 10) ++ (stepOps363 ++ (stepOps364 ++ ((stepOps365.take 4))))) := rfl
theorem main_part134_eq (c : Dev nD) : main_part134 (F := F) c = seq ((stepOps365.drop 4) ++ (stepOps366 ++ ((stepOps367.take 20)))) := rfl
theorem main_part135_eq (c : Dev nD) : main_part135 (F := F) c = seq ((stepOps367.drop 20) ++ (stepOps368 ++ (stepOps369 ++ ((stepOps370.take 14))))) := rfl
theorem main_part136_eq (c : Dev nD) : main_part136 (F := F) c = seq ((stepOps370.drop 14) ++ (stepOps371 ++ (stepOps372 ++ ((stepOps373.take 8))))) := rfl
theorem main_part137_eq (c : Dev nD) : main_part137 (F := F) c = seq ((stepOps373.drop 8) ++ (stepOps374 ++ (stepOps375 ++ ((stepOps376.take 2))))) := rfl
theorem main_part138_eq (c : Dev nD) : main_part138 (F := F) c = seq ((stepOps376.drop 2) ++ (stepOps377 ++ ((stepOps378.take 18)))) := rfl
theorem main_part139_eq (c : Dev nD) : main_part139 (F := F) c = seq ((stepOps378.drop 18) ++ (stepOps379 ++ (stepOps380 ++ ((stepOps381.take 12))))) := rfl
theorem main_part140_eq (c : Dev nD) : main_part140 (F := F) c = seq ((stepOps381.drop 12) ++ (stepOps382 ++ (stepOps383 ++ ((stepOps384.take 6))))) := rfl
theorem main_part141_eq (c : Dev nD) : main_part141 (F := F) c = seq ((stepOps384.drop 6) ++ (stepOps385 ++ (stepOps386))) := rfl
theorem main_part142_eq (c : Dev nD) : main_part142 (F := F) c = seq (stepOps387 ++ (stepOps388 ++ ((stepOps389.take 16)))) := rfl
theorem main_part143_eq (c : Dev nD) : main_part143 (F := F) c = seq ((stepOps389.drop 16) ++ (stepOps390 ++ (stepOps391 ++ ((stepOps392.take 10))))) := rfl

end Cert.ReferenceIdeal.RefRun

end
-- ==== Proof.RefTableWin06.lean ====
/-
  The windows 144 … 167 of the printed @main are the runs of these stretches of the step lists.
-/
import proofs.«900482_g7700000000000483_dist_ssm_v7x_xy2x2_y_b4_s256_d256_n16_f32_1_alg».proof.Proof.RefTableStep24
import proofs.«900482_g7700000000000483_dist_ssm_v7x_xy2x2_y_b4_s256_d256_n16_f32_1_alg».proof.Proof.RefTableStep25
import proofs.«900482_g7700000000000483_dist_ssm_v7x_xy2x2_y_b4_s256_d256_n16_f32_1_alg».proof.Proof.RefTableStep26
import proofs.«900482_g7700000000000483_dist_ssm_v7x_xy2x2_y_b4_s256_d256_n16_f32_1_alg».proof.Proof.RefTableStep27
import proofs.«900482_g7700000000000483_dist_ssm_v7x_xy2x2_y_b4_s256_d256_n16_f32_1_alg».proof.Proof.RefTableStep28
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part144_eq (c : Dev nD) : main_part144 (F := F) c = seq ((stepOps392.drop 10) ++ (stepOps393 ++ (stepOps394 ++ ((stepOps395.take 4))))) := rfl
theorem main_part145_eq (c : Dev nD) : main_part145 (F := F) c = seq ((stepOps395.drop 4) ++ (stepOps396 ++ ((stepOps397.take 20)))) := rfl
theorem main_part146_eq (c : Dev nD) : main_part146 (F := F) c = seq ((stepOps397.drop 20) ++ (stepOps398 ++ (stepOps399 ++ ((stepOps400.take 14))))) := rfl
theorem main_part147_eq (c : Dev nD) : main_part147 (F := F) c = seq ((stepOps400.drop 14) ++ (stepOps401 ++ (stepOps402 ++ ((stepOps403.take 8))))) := rfl
theorem main_part148_eq (c : Dev nD) : main_part148 (F := F) c = seq ((stepOps403.drop 8) ++ (stepOps404 ++ (stepOps405 ++ ((stepOps406.take 2))))) := rfl
theorem main_part149_eq (c : Dev nD) : main_part149 (F := F) c = seq ((stepOps406.drop 2) ++ (stepOps407 ++ ((stepOps408.take 18)))) := rfl
theorem main_part150_eq (c : Dev nD) : main_part150 (F := F) c = seq ((stepOps408.drop 18) ++ (stepOps409 ++ (stepOps410 ++ ((stepOps411.take 12))))) := rfl
theorem main_part151_eq (c : Dev nD) : main_part151 (F := F) c = seq ((stepOps411.drop 12) ++ (stepOps412 ++ (stepOps413 ++ ((stepOps414.take 6))))) := rfl
theorem main_part152_eq (c : Dev nD) : main_part152 (F := F) c = seq ((stepOps414.drop 6) ++ (stepOps415 ++ (stepOps416))) := rfl
theorem main_part153_eq (c : Dev nD) : main_part153 (F := F) c = seq (stepOps417 ++ (stepOps418 ++ ((stepOps419.take 16)))) := rfl
theorem main_part154_eq (c : Dev nD) : main_part154 (F := F) c = seq ((stepOps419.drop 16) ++ (stepOps420 ++ (stepOps421 ++ ((stepOps422.take 10))))) := rfl
theorem main_part155_eq (c : Dev nD) : main_part155 (F := F) c = seq ((stepOps422.drop 10) ++ (stepOps423 ++ (stepOps424 ++ ((stepOps425.take 4))))) := rfl
theorem main_part156_eq (c : Dev nD) : main_part156 (F := F) c = seq ((stepOps425.drop 4) ++ (stepOps426 ++ ((stepOps427.take 20)))) := rfl
theorem main_part157_eq (c : Dev nD) : main_part157 (F := F) c = seq ((stepOps427.drop 20) ++ (stepOps428 ++ (stepOps429 ++ ((stepOps430.take 14))))) := rfl
theorem main_part158_eq (c : Dev nD) : main_part158 (F := F) c = seq ((stepOps430.drop 14) ++ (stepOps431 ++ (stepOps432 ++ ((stepOps433.take 8))))) := rfl
theorem main_part159_eq (c : Dev nD) : main_part159 (F := F) c = seq ((stepOps433.drop 8) ++ (stepOps434 ++ (stepOps435 ++ ((stepOps436.take 2))))) := rfl
theorem main_part160_eq (c : Dev nD) : main_part160 (F := F) c = seq ((stepOps436.drop 2) ++ (stepOps437 ++ ((stepOps438.take 18)))) := rfl
theorem main_part161_eq (c : Dev nD) : main_part161 (F := F) c = seq ((stepOps438.drop 18) ++ (stepOps439 ++ (stepOps440 ++ ((stepOps441.take 12))))) := rfl
theorem main_part162_eq (c : Dev nD) : main_part162 (F := F) c = seq ((stepOps441.drop 12) ++ (stepOps442 ++ (stepOps443 ++ ((stepOps444.take 6))))) := rfl
theorem main_part163_eq (c : Dev nD) : main_part163 (F := F) c = seq ((stepOps444.drop 6) ++ (stepOps445 ++ (stepOps446))) := rfl
theorem main_part164_eq (c : Dev nD) : main_part164 (F := F) c = seq (stepOps447 ++ (stepOps448 ++ ((stepOps449.take 16)))) := rfl
theorem main_part165_eq (c : Dev nD) : main_part165 (F := F) c = seq ((stepOps449.drop 16) ++ (stepOps450 ++ (stepOps451 ++ ((stepOps452.take 10))))) := rfl
theorem main_part166_eq (c : Dev nD) : main_part166 (F := F) c = seq ((stepOps452.drop 10) ++ (stepOps453 ++ (stepOps454 ++ ((stepOps455.take 4))))) := rfl
theorem main_part167_eq (c : Dev nD) : main_part167 (F := F) c = seq ((stepOps455.drop 4) ++ (stepOps456 ++ ((stepOps457.take 20)))) := rfl

end Cert.ReferenceIdeal.RefRun

end
-- ==== Proof.RefTableWin07.lean ====
/-
  The windows 168 … 187 of the printed @main are the runs of these stretches of the step lists.
-/
import proofs.«900482_g7700000000000483_dist_ssm_v7x_xy2x2_y_b4_s256_d256_n16_f32_1_alg».proof.Proof.RefTableStep28
import proofs.«900482_g7700000000000483_dist_ssm_v7x_xy2x2_y_b4_s256_d256_n16_f32_1_alg».proof.Proof.RefTableStep29
import proofs.«900482_g7700000000000483_dist_ssm_v7x_xy2x2_y_b4_s256_d256_n16_f32_1_alg».proof.Proof.RefTableStep30
import proofs.«900482_g7700000000000483_dist_ssm_v7x_xy2x2_y_b4_s256_d256_n16_f32_1_alg».proof.Proof.RefTableStep31
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part168_eq (c : Dev nD) : main_part168 (F := F) c = seq ((stepOps457.drop 20) ++ (stepOps458 ++ (stepOps459 ++ ((stepOps460.take 14))))) := rfl
theorem main_part169_eq (c : Dev nD) : main_part169 (F := F) c = seq ((stepOps460.drop 14) ++ (stepOps461 ++ (stepOps462 ++ ((stepOps463.take 8))))) := rfl
theorem main_part170_eq (c : Dev nD) : main_part170 (F := F) c = seq ((stepOps463.drop 8) ++ (stepOps464 ++ (stepOps465 ++ ((stepOps466.take 2))))) := rfl
theorem main_part171_eq (c : Dev nD) : main_part171 (F := F) c = seq ((stepOps466.drop 2) ++ (stepOps467 ++ ((stepOps468.take 18)))) := rfl
theorem main_part172_eq (c : Dev nD) : main_part172 (F := F) c = seq ((stepOps468.drop 18) ++ (stepOps469 ++ (stepOps470 ++ ((stepOps471.take 12))))) := rfl
theorem main_part173_eq (c : Dev nD) : main_part173 (F := F) c = seq ((stepOps471.drop 12) ++ (stepOps472 ++ (stepOps473 ++ ((stepOps474.take 6))))) := rfl
theorem main_part174_eq (c : Dev nD) : main_part174 (F := F) c = seq ((stepOps474.drop 6) ++ (stepOps475 ++ (stepOps476))) := rfl
theorem main_part175_eq (c : Dev nD) : main_part175 (F := F) c = seq (stepOps477 ++ (stepOps478 ++ ((stepOps479.take 16)))) := rfl
theorem main_part176_eq (c : Dev nD) : main_part176 (F := F) c = seq ((stepOps479.drop 16) ++ (stepOps480 ++ (stepOps481 ++ ((stepOps482.take 10))))) := rfl
theorem main_part177_eq (c : Dev nD) : main_part177 (F := F) c = seq ((stepOps482.drop 10) ++ (stepOps483 ++ (stepOps484 ++ ((stepOps485.take 4))))) := rfl
theorem main_part178_eq (c : Dev nD) : main_part178 (F := F) c = seq ((stepOps485.drop 4) ++ (stepOps486 ++ ((stepOps487.take 20)))) := rfl
theorem main_part179_eq (c : Dev nD) : main_part179 (F := F) c = seq ((stepOps487.drop 20) ++ (stepOps488 ++ (stepOps489 ++ ((stepOps490.take 14))))) := rfl
theorem main_part180_eq (c : Dev nD) : main_part180 (F := F) c = seq ((stepOps490.drop 14) ++ (stepOps491 ++ (stepOps492 ++ ((stepOps493.take 8))))) := rfl
theorem main_part181_eq (c : Dev nD) : main_part181 (F := F) c = seq ((stepOps493.drop 8) ++ (stepOps494 ++ (stepOps495 ++ ((stepOps496.take 2))))) := rfl
theorem main_part182_eq (c : Dev nD) : main_part182 (F := F) c = seq ((stepOps496.drop 2) ++ (stepOps497 ++ ((stepOps498.take 18)))) := rfl
theorem main_part183_eq (c : Dev nD) : main_part183 (F := F) c = seq ((stepOps498.drop 18) ++ (stepOps499 ++ (stepOps500 ++ ((stepOps501.take 12))))) := rfl
theorem main_part184_eq (c : Dev nD) : main_part184 (F := F) c = seq ((stepOps501.drop 12) ++ (stepOps502 ++ (stepOps503 ++ ((stepOps504.take 6))))) := rfl
theorem main_part185_eq (c : Dev nD) : main_part185 (F := F) c = seq ((stepOps504.drop 6) ++ (stepOps505 ++ (stepOps506))) := rfl
theorem main_part186_eq (c : Dev nD) : main_part186 (F := F) c = seq (stepOps507 ++ (stepOps508 ++ ((stepOps509.take 16)))) := rfl
theorem main_part187_eq (c : Dev nD) : main_part187 (F := F) c = seq ((stepOps509.drop 16) ++ (stepOps510 ++ (stepOps511))) := rfl

end Cert.ReferenceIdeal.RefRun

end
-- ==== Proof.RefRunSeq.lean ====
/-
  The printed @main is the run of the whole list of operations: window by window from the last one back, each window followed by
  the rest is the run of the list's suffix from the window's first operation on. Then the run of @main read back.
-/
import proofs.«900482_g7700000000000483_dist_ssm_v7x_xy2x2_y_b4_s256_d256_n16_f32_1_alg».proof.Proof.RefTableTail
import proofs.«900482_g7700000000000483_dist_ssm_v7x_xy2x2_y_b4_s256_d256_n16_f32_1_alg».proof.Proof.RefProgTail
import proofs.«900482_g7700000000000483_dist_ssm_v7x_xy2x2_y_b4_s256_d256_n16_f32_1_alg».proof.Proof.RefTableWin00
import proofs.«900482_g7700000000000483_dist_ssm_v7x_xy2x2_y_b4_s256_d256_n16_f32_1_alg».proof.Proof.RefTableWin01
import proofs.«900482_g7700000000000483_dist_ssm_v7x_xy2x2_y_b4_s256_d256_n16_f32_1_alg».proof.Proof.RefTableWin02
import proofs.«900482_g7700000000000483_dist_ssm_v7x_xy2x2_y_b4_s256_d256_n16_f32_1_alg».proof.Proof.RefTableWin03
import proofs.«900482_g7700000000000483_dist_ssm_v7x_xy2x2_y_b4_s256_d256_n16_f32_1_alg».proof.Proof.RefTableWin04
import proofs.«900482_g7700000000000483_dist_ssm_v7x_xy2x2_y_b4_s256_d256_n16_f32_1_alg».proof.Proof.RefTableWin05
import proofs.«900482_g7700000000000483_dist_ssm_v7x_xy2x2_y_b4_s256_d256_n16_f32_1_alg».proof.Proof.RefTableWin06
import proofs.«900482_g7700000000000483_dist_ssm_v7x_xy2x2_y_b4_s256_d256_n16_f32_1_alg».proof.Proof.RefTableWin07
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem take_drop_append {α : Type} (l : List α) (k : ℕ) (r : List α) : l.take k ++ (l.drop k ++ r) = l ++ r := by
  rw [← List.append_assoc, List.take_append_drop]

theorem tail187 (c : Dev nD) : tailProg187 (F := F) c = seq ((stepOps509.drop 16) ++ opsFrom510) :=
  (main_part187_eq c).trans (congrArg seq (by rfl))
theorem tail186 (c : Dev nD) : tailProg186 (F := F) c = seq (opsFrom507) := by
  show main_part186 (F := F) c >>= (fun _ => tailProg187 c) = _
  rw [main_part186_eq c, tail187 c, ← seq_append]
  refine congrArg seq ?_
  simp only [List.append_assoc, take_drop_append] <;> rfl
theorem tail185 (c : Dev nD) : tailProg185 (F := F) c = seq ((stepOps504.drop 6) ++ opsFrom505) := by
  show main_part185 (F := F) c >>= (fun _ => tailProg186 c) = _
  rw [main_part185_eq c, tail186 c, ← seq_append]
  refine congrArg seq ?_
  simp only [List.append_assoc, take_drop_append] <;> rfl
theorem tail184 (c : Dev nD) : tailProg184 (F := F) c = seq ((stepOps501.drop 12) ++ opsFrom502) := by
  show main_part184 (F := F) c >>= (fun _ => tailProg185 c) = _
  rw [main_part184_eq c, tail185 c, ← seq_append]
  refine congrArg seq ?_
  simp only [List.append_assoc, take_drop_append] <;> rfl
theorem tail183 (c : Dev nD) : tailProg183 (F := F) c = seq ((stepOps498.drop 18) ++ opsFrom499) := by
  show main_part183 (F := F) c >>= (fun _ => tailProg184 c) = _
  rw [main_part183_eq c, tail184 c, ← seq_append]
  refine congrArg seq ?_
  simp only [List.append_assoc, take_drop_append] <;> rfl
theorem tail182 (c : Dev nD) : tailProg182 (F := F) c = seq ((stepOps496.drop 2) ++ opsFrom497) := by
  show main_part182 (F := F) c >>= (fun _ => tailProg183 c) = _
  rw [main_part182_eq c, tail183 c, ← seq_append]
  refine congrArg seq ?_
  simp only [List.append_assoc, take_drop_append] <;> rfl
theorem tail181 (c : Dev nD) : tailProg181 (F := F) c = seq ((stepOps493.drop 8) ++ opsFrom494) := by
  show main_part181 (F := F) c >>= (fun _ => tailProg182 c) = _
  rw [main_part181_eq c, tail182 c, ← seq_append]
  refine congrArg seq ?_
  simp only [List.append_assoc, take_drop_append] <;> rfl
theorem tail180 (c : Dev nD) : tailProg180 (F := F) c = seq ((stepOps490.drop 14) ++ opsFrom491) := by
  show main_part180 (F := F) c >>= (fun _ => tailProg181 c) = _
  rw [main_part180_eq c, tail181 c, ← seq_append]
  refine congrArg seq ?_
  simp only [List.append_assoc, take_drop_append] <;> rfl
theorem tail179 (c : Dev nD) : tailProg179 (F := F) c = seq ((stepOps487.drop 20) ++ opsFrom488) := by
  show main_part179 (F := F) c >>= (fun _ => tailProg180 c) = _
  rw [main_part179_eq c, tail180 c, ← seq_append]
  refine congrArg seq ?_
  simp only [List.append_assoc, take_drop_append] <;> rfl
theorem tail178 (c : Dev nD) : tailProg178 (F := F) c = seq ((stepOps485.drop 4) ++ opsFrom486) := by
  show main_part178 (F := F) c >>= (fun _ => tailProg179 c) = _
  rw [main_part178_eq c, tail179 c, ← seq_append]
  refine congrArg seq ?_
  simp only [List.append_assoc, take_drop_append] <;> rfl
theorem tail177 (c : Dev nD) : tailProg177 (F := F) c = seq ((stepOps482.drop 10) ++ opsFrom483) := by
  show main_part177 (F := F) c >>= (fun _ => tailProg178 c) = _
  rw [main_part177_eq c, tail178 c, ← seq_append]
  refine congrArg seq ?_
  simp only [List.append_assoc, take_drop_append] <;> rfl
theorem tail176 (c : Dev nD) : tailProg176 (F := F) c = seq ((stepOps479.drop 16) ++ opsFrom480) := by
  show main_part176 (F := F) c >>= (fun _ => tailProg177 c) = _
  rw [main_part176_eq c, tail177 c, ← seq_append]
  refine congrArg seq ?_
  simp only [List.append_assoc, take_drop_append] <;> rfl
theorem tail175 (c : Dev nD) : tailProg175 (F := F) c = seq (opsFrom477) := by
  show main_part175 (F := F) c >>= (fun _ => tailProg176 c) = _
  rw [main_part175_eq c, tail176 c, ← seq_append]
  refine congrArg seq ?_
  simp only [List.append_assoc, take_drop_append] <;> rfl
theorem tail174 (c : Dev nD) : tailProg174 (F := F) c = seq ((stepOps474.drop 6) ++ opsFrom475) := by
  show main_part174 (F := F) c >>= (fun _ => tailProg175 c) = _
  rw [main_part174_eq c, tail175 c, ← seq_append]
  refine congrArg seq ?_
  simp only [List.append_assoc, take_drop_append] <;> rfl
theorem tail173 (c : Dev nD) : tailProg173 (F := F) c = seq ((stepOps471.drop 12) ++ opsFrom472) := by
  show main_part173 (F := F) c >>= (fun _ => tailProg174 c) = _
  rw [main_part173_eq c, tail174 c, ← seq_append]
  refine congrArg seq ?_
  simp only [List.append_assoc, take_drop_append] <;> rfl
theorem tail172 (c : Dev nD) : tailProg172 (F := F) c = seq ((stepOps468.drop 18) ++ opsFrom469) := by
  show main_part172 (F := F) c >>= (fun _ => tailProg173 c) = _
  rw [main_part172_eq c, tail173 c, ← seq_append]
  refine congrArg seq ?_
  simp only [List.append_assoc, take_drop_append] <;> rfl
theorem tail171 (c : Dev nD) : tailProg171 (F := F) c = seq ((stepOps466.drop 2) ++ opsFrom467) := by
  show main_part171 (F := F) c >>= (fun _ => tailProg172 c) = _
  rw [main_part171_eq c, tail172 c, ← seq_append]
  refine congrArg seq ?_
  simp only [List.append_assoc, take_drop_append] <;> rfl
theorem tail170 (c : Dev nD) : tailProg170 (F := F) c = seq ((stepOps463.drop 8) ++ opsFrom464) := by
  show main_part170 (F := F) c >>= (fun _ => tailProg171 c) = _
  rw [main_part170_eq c, tail171 c, ← seq_append]
  refine congrArg seq ?_
  simp only [List.append_assoc, take_drop_append] <;> rfl
theorem tail169 (c : Dev nD) : tailProg169 (F := F) c = seq ((stepOps460.drop 14) ++ opsFrom461) := by
  show main_part169 (F := F) c >>= (fun _ => tailProg170 c) = _
  rw [main_part169_eq c, tail170 c, ← seq_append]
  refine congrArg seq ?_
  simp only [List.append_assoc, take_drop_append] <;> rfl
theorem tail168 (c : Dev nD) : tailProg168 (F := F) c = seq ((stepOps457.drop 20) ++ opsFrom458) := by
  show main_part168 (F := F) c >>= (fun _ => tailProg169 c) = _
  rw [main_part168_eq c, tail169 c, ← seq_append]
  refine congrArg seq ?_
  simp only [List.append_assoc, take_drop_append] <;> rfl
theorem tail167 (c : Dev nD) : tailProg167 (F := F) c = seq ((stepOps455.drop 4) ++ opsFrom456) := by
  show main_part167 (F := F) c >>= (fun _ => tailProg168 c) = _
  rw [main_part167_eq c, tail168 c, ← seq_append]
  refine congrArg seq ?_
  simp only [List.append_assoc, take_drop_append] <;> rfl
theorem tail166 (c : Dev nD) : tailProg166 (F := F) c = seq ((stepOps452.drop 10) ++ opsFrom453) := by
  show main_part166 (F := F) c >>= (fun _ => tailProg167 c) = _
  rw [main_part166_eq c, tail167 c, ← seq_append]
  refine congrArg seq ?_
  simp only [List.append_assoc, take_drop_append] <;> rfl
theorem tail165 (c : Dev nD) : tailProg165 (F := F) c = seq ((stepOps449.drop 16) ++ opsFrom450) := by
  show main_part165 (F := F) c >>= (fun _ => tailProg166 c) = _
  rw [main_part165_eq c, tail166 c, ← seq_append]
  refine congrArg seq ?_
  simp only [List.append_assoc, take_drop_append] <;> rfl
theorem tail164 (c : Dev nD) : tailProg164 (F := F) c = seq (opsFrom447) := by
  show main_part164 (F := F) c >>= (fun _ => tailProg165 c) = _
  rw [main_part164_eq c, tail165 c, ← seq_append]
  refine congrArg seq ?_
  simp only [List.append_assoc, take_drop_append] <;> rfl
theorem tail163 (c : Dev nD) : tailProg163 (F := F) c = seq ((stepOps444.drop 6) ++ opsFrom445) := by
  show main_part163 (F := F) c >>= (fun _ => tailProg164 c) = _
  rw [main_part163_eq c, tail164 c, ← seq_append]
  refine congrArg seq ?_
  simp only [List.append_assoc, take_drop_append] <;> rfl
theorem tail162 (c : Dev nD) : tailProg162 (F := F) c = seq ((stepOps441.drop 12) ++ opsFrom442) := by
  show main_part162 (F := F) c >>= (fun _ => tailProg163 c) = _
  rw [main_part162_eq c, tail163 c, ← seq_append]
  refine congrArg seq ?_
  simp only [List.append_assoc, take_drop_append] <;> rfl
theorem tail161 (c : Dev nD) : tailProg161 (F := F) c = seq ((stepOps438.drop 18) ++ opsFrom439) := by
  show main_part161 (F := F) c >>= (fun _ => tailProg162 c) = _
  rw [main_part161_eq c, tail162 c, ← seq_append]
  refine congrArg seq ?_
  simp only [List.append_assoc, take_drop_append] <;> rfl
theorem tail160 (c : Dev nD) : tailProg160 (F := F) c = seq ((stepOps436.drop 2) ++ opsFrom437) := by
  show main_part160 (F := F) c >>= (fun _ => tailProg161 c) = _
  rw [main_part160_eq c, tail161 c, ← seq_append]
  refine congrArg seq ?_
  simp only [List.append_assoc, take_drop_append] <;> rfl
theorem tail159 (c : Dev nD) : tailProg159 (F := F) c = seq ((stepOps433.drop 8) ++ opsFrom434) := by
  show main_part159 (F := F) c >>= (fun _ => tailProg160 c) = _
  rw [main_part159_eq c, tail160 c, ← seq_append]
  refine congrArg seq ?_
  simp only [List.append_assoc, take_drop_append] <;> rfl
theorem tail158 (c : Dev nD) : tailProg158 (F := F) c = seq ((stepOps430.drop 14) ++ opsFrom431) := by
  show main_part158 (F := F) c >>= (fun _ => tailProg159 c) = _
  rw [main_part158_eq c, tail159 c, ← seq_append]
  refine congrArg seq ?_
  simp only [List.append_assoc, take_drop_append] <;> rfl
theorem tail157 (c : Dev nD) : tailProg157 (F := F) c = seq ((stepOps427.drop 20) ++ opsFrom428) := by
  show main_part157 (F := F) c >>= (fun _ => tailProg158 c) = _
  rw [main_part157_eq c, tail158 c, ← seq_append]
  refine congrArg seq ?_
  simp only [List.append_assoc, take_drop_append] <;> rfl
theorem tail156 (c : Dev nD) : tailProg156 (F := F) c = seq ((stepOps425.drop 4) ++ opsFrom426) := by
  show main_part156 (F := F) c >>= (fun _ => tailProg157 c) = _
  rw [main_part156_eq c, tail157 c, ← seq_append]
  refine congrArg seq ?_
  simp only [List.append_assoc, take_drop_append] <;> rfl
theorem tail155 (c : Dev nD) : tailProg155 (F := F) c = seq ((stepOps422.drop 10) ++ opsFrom423) := by
  show main_part155 (F := F) c >>= (fun _ => tailProg156 c) = _
  rw [main_part155_eq c, tail156 c, ← seq_append]
  refine congrArg seq ?_
  simp only [List.append_assoc, take_drop_append] <;> rfl
theorem tail154 (c : Dev nD) : tailProg154 (F := F) c = seq ((stepOps419.drop 16) ++ opsFrom420) := by
  show main_part154 (F := F) c >>= (fun _ => tailProg155 c) = _
  rw [main_part154_eq c, tail155 c, ← seq_append]
  refine congrArg seq ?_
  simp only [List.append_assoc, take_drop_append] <;> rfl
theorem tail153 (c : Dev nD) : tailProg153 (F := F) c = seq (opsFrom417) := by
  show main_part153 (F := F) c >>= (fun _ => tailProg154 c) = _
  rw [main_part153_eq c, tail154 c, ← seq_append]
  refine congrArg seq ?_
  simp only [List.append_assoc, take_drop_append] <;> rfl
theorem tail152 (c : Dev nD) : tailProg152 (F := F) c = seq ((stepOps414.drop 6) ++ opsFrom415) := by
  show main_part152 (F := F) c >>= (fun _ => tailProg153 c) = _
  rw [main_part152_eq c, tail153 c, ← seq_append]
  refine congrArg seq ?_
  simp only [List.append_assoc, take_drop_append] <;> rfl
theorem tail151 (c : Dev nD) : tailProg151 (F := F) c = seq ((stepOps411.drop 12) ++ opsFrom412) := by
  show main_part151 (F := F) c >>= (fun _ => tailProg152 c) = _
  rw [main_part151_eq c, tail152 c, ← seq_append]
  refine congrArg seq ?_
  simp only [List.append_assoc, take_drop_append] <;> rfl
theorem tail150 (c : Dev nD) : tailProg150 (F := F) c = seq ((stepOps408.drop 18) ++ opsFrom409) := by
  show main_part150 (F := F) c >>= (fun _ => tailProg151 c) = _
  rw [main_part150_eq c, tail151 c, ← seq_append]
  refine congrArg seq ?_
  simp only [List.append_assoc, take_drop_append] <;> rfl
theorem tail149 (c : Dev nD) : tailProg149 (F := F) c = seq ((stepOps406.drop 2) ++ opsFrom407) := by
  show main_part149 (F := F) c >>= (fun _ => tailProg150 c) = _
  rw [main_part149_eq c, tail150 c, ← seq_append]
  refine congrArg seq ?_
  simp only [List.append_assoc, take_drop_append] <;> rfl
theorem tail148 (c : Dev nD) : tailProg148 (F := F) c = seq ((stepOps403.drop 8) ++ opsFrom404) := by
  show main_part148 (F := F) c >>= (fun _ => tailProg149 c) = _
  rw [main_part148_eq c, tail149 c, ← seq_append]
  refine congrArg seq ?_
  simp only [List.append_assoc, take_drop_append] <;> rfl
theorem tail147 (c : Dev nD) : tailProg147 (F := F) c = seq ((stepOps400.drop 14) ++ opsFrom401) := by
  show main_part147 (F := F) c >>= (fun _ => tailProg148 c) = _
  rw [main_part147_eq c, tail148 c, ← seq_append]
  refine congrArg seq ?_
  simp only [List.append_assoc, take_drop_append] <;> rfl
theorem tail146 (c : Dev nD) : tailProg146 (F := F) c = seq ((stepOps397.drop 20) ++ opsFrom398) := by
  show main_part146 (F := F) c >>= (fun _ => tailProg147 c) = _
  rw [main_part146_eq c, tail147 c, ← seq_append]
  refine congrArg seq ?_
  simp only [List.append_assoc, take_drop_append] <;> rfl
theorem tail145 (c : Dev nD) : tailProg145 (F := F) c = seq ((stepOps395.drop 4) ++ opsFrom396) := by
  show main_part145 (F := F) c >>= (fun _ => tailProg146 c) = _
  rw [main_part145_eq c, tail146 c, ← seq_append]
  refine congrArg seq ?_
  simp only [List.append_assoc, take_drop_append] <;> rfl
theorem tail144 (c : Dev nD) : tailProg144 (F := F) c = seq ((stepOps392.drop 10) ++ opsFrom393) := by
  show main_part144 (F := F) c >>= (fun _ => tailProg145 c) = _
  rw [main_part144_eq c, tail145 c, ← seq_append]
  refine congrArg seq ?_
  simp only [List.append_assoc, take_drop_append] <;> rfl
theorem tail143 (c : Dev nD) : tailProg143 (F := F) c = seq ((stepOps389.drop 16) ++ opsFrom390) := by
  show main_part143 (F := F) c >>= (fun _ => tailProg144 c) = _
  rw [main_part143_eq c, tail144 c, ← seq_append]
  refine congrArg seq ?_
  simp only [List.append_assoc, take_drop_append] <;> rfl
theorem tail142 (c : Dev nD) : tailProg142 (F := F) c = seq (opsFrom387) := by
  show main_part142 (F := F) c >>= (fun _ => tailProg143 c) = _
  rw [main_part142_eq c, tail143 c, ← seq_append]
  refine congrArg seq ?_
  simp only [List.append_assoc, take_drop_append] <;> rfl
theorem tail141 (c : Dev nD) : tailProg141 (F := F) c = seq ((stepOps384.drop 6) ++ opsFrom385) := by
  show main_part141 (F := F) c >>= (fun _ => tailProg142 c) = _
  rw [main_part141_eq c, tail142 c, ← seq_append]
  refine congrArg seq ?_
  simp only [List.append_assoc, take_drop_append] <;> rfl
theorem tail140 (c : Dev nD) : tailProg140 (F := F) c = seq ((stepOps381.drop 12) ++ opsFrom382) := by
  show main_part140 (F := F) c >>= (fun _ => tailProg141 c) = _
  rw [main_part140_eq c, tail141 c, ← seq_append]
  refine congrArg seq ?_
  simp only [List.append_assoc, take_drop_append] <;> rfl
theorem tail139 (c : Dev nD) : tailProg139 (F := F) c = seq ((stepOps378.drop 18) ++ opsFrom379) := by
  show main_part139 (F := F) c >>= (fun _ => tailProg140 c) = _
  rw [main_part139_eq c, tail140 c, ← seq_append]
  refine congrArg seq ?_
  simp only [List.append_assoc, take_drop_append] <;> rfl
theorem tail138 (c : Dev nD) : tailProg138 (F := F) c = seq ((stepOps376.drop 2) ++ opsFrom377) := by
  show main_part138 (F := F) c >>= (fun _ => tailProg139 c) = _
  rw [main_part138_eq c, tail139 c, ← seq_append]
  refine congrArg seq ?_
  simp only [List.append_assoc, take_drop_append] <;> rfl
theorem tail137 (c : Dev nD) : tailProg137 (F := F) c = seq ((stepOps373.drop 8) ++ opsFrom374) := by
  show main_part137 (F := F) c >>= (fun _ => tailProg138 c) = _
  rw [main_part137_eq c, tail138 c, ← seq_append]
  refine congrArg seq ?_
  simp only [List.append_assoc, take_drop_append] <;> rfl
theorem tail136 (c : Dev nD) : tailProg136 (F := F) c = seq ((stepOps370.drop 14) ++ opsFrom371) := by
  show main_part136 (F := F) c >>= (fun _ => tailProg137 c) = _
  rw [main_part136_eq c, tail137 c, ← seq_append]
  refine congrArg seq ?_
  simp only [List.append_assoc, take_drop_append] <;> rfl
theorem tail135 (c : Dev nD) : tailProg135 (F := F) c = seq ((stepOps367.drop 20) ++ opsFrom368) := by
  show main_part135 (F := F) c >>= (fun _ => tailProg136 c) = _
  rw [main_part135_eq c, tail136 c, ← seq_append]
  refine congrArg seq ?_
  simp only [List.append_assoc, take_drop_append] <;> rfl
theorem tail134 (c : Dev nD) : tailProg134 (F := F) c = seq ((stepOps365.drop 4) ++ opsFrom366) := by
  show main_part134 (F := F) c >>= (fun _ => tailProg135 c) = _
  rw [main_part134_eq c, tail135 c, ← seq_append]
  refine congrArg seq ?_
  simp only [List.append_assoc, take_drop_append] <;> rfl
theorem tail133 (c : Dev nD) : tailProg133 (F := F) c = seq ((stepOps362.drop 10) ++ opsFrom363) := by
  show main_part133 (F := F) c >>= (fun _ => tailProg134 c) = _
  rw [main_part133_eq c, tail134 c, ← seq_append]
  refine congrArg seq ?_
  simp only [List.append_assoc, take_drop_append] <;> rfl
theorem tail132 (c : Dev nD) : tailProg132 (F := F) c = seq ((stepOps359.drop 16) ++ opsFrom360) := by
  show main_part132 (F := F) c >>= (fun _ => tailProg133 c) = _
  rw [main_part132_eq c, tail133 c, ← seq_append]
  refine congrArg seq ?_
  simp only [List.append_assoc, take_drop_append] <;> rfl
theorem tail131 (c : Dev nD) : tailProg131 (F := F) c = seq (opsFrom357) := by
  show main_part131 (F := F) c >>= (fun _ => tailProg132 c) = _
  rw [main_part131_eq c, tail132 c, ← seq_append]
  refine congrArg seq ?_
  simp only [List.append_assoc, take_drop_append] <;> rfl
theorem tail130 (c : Dev nD) : tailProg130 (F := F) c = seq ((stepOps354.drop 6) ++ opsFrom355) := by
  show main_part130 (F := F) c >>= (fun _ => tailProg131 c) = _
  rw [main_part130_eq c, tail131 c, ← seq_append]
  refine congrArg seq ?_
  simp only [List.append_assoc, take_drop_append] <;> rfl
theorem tail129 (c : Dev nD) : tailProg129 (F := F) c = seq ((stepOps351.drop 12) ++ opsFrom352) := by
  show main_part129 (F := F) c >>= (fun _ => tailProg130 c) = _
  rw [main_part129_eq c, tail130 c, ← seq_append]
  refine congrArg seq ?_
  simp only [List.append_assoc, take_drop_append] <;> rfl
theorem tail128 (c : Dev nD) : tailProg128 (F := F) c = seq ((stepOps348.drop 18) ++ opsFrom349) := by
  show main_part128 (F := F) c >>= (fun _ => tailProg129 c) = _
  rw [main_part128_eq c, tail129 c, ← seq_append]
  refine congrArg seq ?_
  simp only [List.append_assoc, take_drop_append] <;> rfl
theorem tail127 (c : Dev nD) : tailProg127 (F := F) c = seq ((stepOps346.drop 2) ++ opsFrom347) := by
  show main_part127 (F := F) c >>= (fun _ => tailProg128 c) = _
  rw [main_part127_eq c, tail128 c, ← seq_append]
  refine congrArg seq ?_
  simp only [List.append_assoc, take_drop_append] <;> rfl
theorem tail126 (c : Dev nD) : tailProg126 (F := F) c = seq ((stepOps343.drop 8) ++ opsFrom344) := by
  show main_part126 (F := F) c >>= (fun _ => tailProg127 c) = _
  rw [main_part126_eq c, tail127 c, ← seq_append]
  refine congrArg seq ?_
  simp only [List.append_assoc, take_drop_append] <;> rfl
theorem tail125 (c : Dev nD) : tailProg125 (F := F) c = seq ((stepOps340.drop 14) ++ opsFrom341) := by
  show main_part125 (F := F) c >>= (fun _ => tailProg126 c) = _
  rw [main_part125_eq c, tail126 c, ← seq_append]
  refine congrArg seq ?_
  simp only [List.append_assoc, take_drop_append] <;> rfl
theorem tail124 (c : Dev nD) : tailProg124 (F := F) c = seq ((stepOps337.drop 20) ++ opsFrom338) := by
  show main_part124 (F := F) c >>= (fun _ => tailProg125 c) = _
  rw [main_part124_eq c, tail125 c, ← seq_append]
  refine congrArg seq ?_
  simp only [List.append_assoc, take_drop_append] <;> rfl
theorem tail123 (c : Dev nD) : tailProg123 (F := F) c = seq ((stepOps335.drop 4) ++ opsFrom336) := by
  show main_part123 (F := F) c >>= (fun _ => tailProg124 c) = _
  rw [main_part123_eq c, tail124 c, ← seq_append]
  refine congrArg seq ?_
  simp only [List.append_assoc, take_drop_append] <;> rfl
theorem tail122 (c : Dev nD) : tailProg122 (F := F) c = seq ((stepOps332.drop 10) ++ opsFrom333) := by
  show main_part122 (F := F) c >>= (fun _ => tailProg123 c) = _
  rw [main_part122_eq c, tail123 c, ← seq_append]
  refine congrArg seq ?_
  simp only [List.append_assoc, take_drop_append] <;> rfl
theorem tail121 (c : Dev nD) : tailProg121 (F := F) c = seq ((stepOps329.drop 16) ++ opsFrom330) := by
  show main_part121 (F := F) c >>= (fun _ => tailProg122 c) = _
  rw [main_part121_eq c, tail122 c, ← seq_append]
  refine congrArg seq ?_
  simp only [List.append_assoc, take_drop_append] <;> rfl
theorem tail120 (c : Dev nD) : tailProg120 (F := F) c = seq (opsFrom327) := by
  show main_part120 (F := F) c >>= (fun _ => tailProg121 c) = _
  rw [main_part120_eq c, tail121 c, ← seq_append]
  refine congrArg seq ?_
  simp only [List.append_assoc, take_drop_append] <;> rfl
theorem tail119 (c : Dev nD) : tailProg119 (F := F) c = seq ((stepOps324.drop 6) ++ opsFrom325) := by
  show main_part119 (F := F) c >>= (fun _ => tailProg120 c) = _
  rw [main_part119_eq c, tail120 c, ← seq_append]
  refine congrArg seq ?_
  simp only [List.append_assoc, take_drop_append] <;> rfl
theorem tail118 (c : Dev nD) : tailProg118 (F := F) c = seq ((stepOps321.drop 12) ++ opsFrom322) := by
  show main_part118 (F := F) c >>= (fun _ => tailProg119 c) = _
  rw [main_part118_eq c, tail119 c, ← seq_append]
  refine congrArg seq ?_
  simp only [List.append_assoc, take_drop_append] <;> rfl
theorem tail117 (c : Dev nD) : tailProg117 (F := F) c = seq ((stepOps318.drop 18) ++ opsFrom319) := by
  show main_part117 (F := F) c >>= (fun _ => tailProg118 c) = _
  rw [main_part117_eq c, tail118 c, ← seq_append]
  refine congrArg seq ?_
  simp only [List.append_assoc, take_drop_append] <;> rfl
theorem tail116 (c : Dev nD) : tailProg116 (F := F) c = seq ((stepOps316.drop 2) ++ opsFrom317) := by
  show main_part116 (F := F) c >>= (fun _ => tailProg117 c) = _
  rw [main_part116_eq c, tail117 c, ← seq_append]
  refine congrArg seq ?_
  simp only [List.append_assoc, take_drop_append] <;> rfl
theorem tail115 (c : Dev nD) : tailProg115 (F := F) c = seq ((stepOps313.drop 8) ++ opsFrom314) := by
  show main_part115 (F := F) c >>= (fun _ => tailProg116 c) = _
  rw [main_part115_eq c, tail116 c, ← seq_append]
  refine congrArg seq ?_
  simp only [List.append_assoc, take_drop_append] <;> rfl
theorem tail114 (c : Dev nD) : tailProg114 (F := F) c = seq ((stepOps310.drop 14) ++ opsFrom311) := by
  show main_part114 (F := F) c >>= (fun _ => tailProg115 c) = _
  rw [main_part114_eq c, tail115 c, ← seq_append]
  refine congrArg seq ?_
  simp only [List.append_assoc, take_drop_append] <;> rfl
theorem tail113 (c : Dev nD) : tailProg113 (F := F) c = seq ((stepOps307.drop 20) ++ opsFrom308) := by
  show main_part113 (F := F) c >>= (fun _ => tailProg114 c) = _
  rw [main_part113_eq c, tail114 c, ← seq_append]
  refine congrArg seq ?_
  simp only [List.append_assoc, take_drop_append] <;> rfl
theorem tail112 (c : Dev nD) : tailProg112 (F := F) c = seq ((stepOps305.drop 4) ++ opsFrom306) := by
  show main_part112 (F := F) c >>= (fun _ => tailProg113 c) = _
  rw [main_part112_eq c, tail113 c, ← seq_append]
  refine congrArg seq ?_
  simp only [List.append_assoc, take_drop_append] <;> rfl
theorem tail111 (c : Dev nD) : tailProg111 (F := F) c = seq ((stepOps302.drop 10) ++ opsFrom303) := by
  show main_part111 (F := F) c >>= (fun _ => tailProg112 c) = _
  rw [main_part111_eq c, tail112 c, ← seq_append]
  refine congrArg seq ?_
  simp only [List.append_assoc, take_drop_append] <;> rfl
theorem tail110 (c : Dev nD) : tailProg110 (F := F) c = seq ((stepOps299.drop 16) ++ opsFrom300) := by
  show main_part110 (F := F) c >>= (fun _ => tailProg111 c) = _
  rw [main_part110_eq c, tail111 c, ← seq_append]
  refine congrArg seq ?_
  simp only [List.append_assoc, take_drop_append] <;> rfl
theorem tail109 (c : Dev nD) : tailProg109 (F := F) c = seq (opsFrom297) := by
  show main_part109 (F := F) c >>= (fun _ => tailProg110 c) = _
  rw [main_part109_eq c, tail110 c, ← seq_append]
  refine congrArg seq ?_
  simp only [List.append_assoc, take_drop_append] <;> rfl
theorem tail108 (c : Dev nD) : tailProg108 (F := F) c = seq ((stepOps294.drop 6) ++ opsFrom295) := by
  show main_part108 (F := F) c >>= (fun _ => tailProg109 c) = _
  rw [main_part108_eq c, tail109 c, ← seq_append]
  refine congrArg seq ?_
  simp only [List.append_assoc, take_drop_append] <;> rfl
theorem tail107 (c : Dev nD) : tailProg107 (F := F) c = seq ((stepOps291.drop 12) ++ opsFrom292) := by
  show main_part107 (F := F) c >>= (fun _ => tailProg108 c) = _
  rw [main_part107_eq c, tail108 c, ← seq_append]
  refine congrArg seq ?_
  simp only [List.append_assoc, take_drop_append] <;> rfl
theorem tail106 (c : Dev nD) : tailProg106 (F := F) c = seq ((stepOps288.drop 18) ++ opsFrom289) := by
  show main_part106 (F := F) c >>= (fun _ => tailProg107 c) = _
  rw [main_part106_eq c, tail107 c, ← seq_append]
  refine congrArg seq ?_
  simp only [List.append_assoc, take_drop_append] <;> rfl
theorem tail105 (c : Dev nD) : tailProg105 (F := F) c = seq ((stepOps286.drop 2) ++ opsFrom287) := by
  show main_part105 (F := F) c >>= (fun _ => tailProg106 c) = _
  rw [main_part105_eq c, tail106 c, ← seq_append]
  refine congrArg seq ?_
  simp only [List.append_assoc, take_drop_append] <;> rfl
theorem tail104 (c : Dev nD) : tailProg104 (F := F) c = seq ((stepOps283.drop 8) ++ opsFrom284) := by
  show main_part104 (F := F) c >>= (fun _ => tailProg105 c) = _
  rw [main_part104_eq c, tail105 c, ← seq_append]
  refine congrArg seq ?_
  simp only [List.append_assoc, take_drop_append] <;> rfl
theorem tail103 (c : Dev nD) : tailProg103 (F := F) c = seq ((stepOps280.drop 14) ++ opsFrom281) := by
  show main_part103 (F := F) c >>= (fun _ => tailProg104 c) = _
  rw [main_part103_eq c, tail104 c, ← seq_append]
  refine congrArg seq ?_
  simp only [List.append_assoc, take_drop_append] <;> rfl
theorem tail102 (c : Dev nD) : tailProg102 (F := F) c = seq ((stepOps277.drop 20) ++ opsFrom278) := by
  show main_part102 (F := F) c >>= (fun _ => tailProg103 c) = _
  rw [main_part102_eq c, tail103 c, ← seq_append]
  refine congrArg seq ?_
  simp only [List.append_assoc, take_drop_append] <;> rfl
theorem tail101 (c : Dev nD) : tailProg101 (F := F) c = seq ((stepOps275.drop 4) ++ opsFrom276) := by
  show main_part101 (F := F) c >>= (fun _ => tailProg102 c) = _
  rw [main_part101_eq c, tail102 c, ← seq_append]
  refine congrArg seq ?_
  simp only [List.append_assoc, take_drop_append] <;> rfl
theorem tail100 (c : Dev nD) : tailProg100 (F := F) c = seq ((stepOps272.drop 10) ++ opsFrom273) := by
  show main_part100 (F := F) c >>= (fun _ => tailProg101 c) = _
  rw [main_part100_eq c, tail101 c, ← seq_append]
  refine congrArg seq ?_
  simp only [List.append_assoc, take_drop_append] <;> rfl
theorem tail99 (c : Dev nD) : tailProg99 (F := F) c = seq ((stepOps269.drop 16) ++ opsFrom270) := by
  show main_part99 (F := F) c >>= (fun _ => tailProg100 c) = _
  rw [main_part99_eq c, tail100 c, ← seq_append]
  refine congrArg seq ?_
  simp only [List.append_assoc, take_drop_append] <;> rfl
theorem tail98 (c : Dev nD) : tailProg98 (F := F) c = seq (opsFrom267) := by
  show main_part98 (F := F) c >>= (fun _ => tailProg99 c) = _
  rw [main_part98_eq c, tail99 c, ← seq_append]
  refine congrArg seq ?_
  simp only [List.append_assoc, take_drop_append] <;> rfl
theorem tail97 (c : Dev nD) : tailProg97 (F := F) c = seq ((stepOps264.drop 6) ++ opsFrom265) := by
  show main_part97 (F := F) c >>= (fun _ => tailProg98 c) = _
  rw [main_part97_eq c, tail98 c, ← seq_append]
  refine congrArg seq ?_
  simp only [List.append_assoc, take_drop_append] <;> rfl
theorem tail96 (c : Dev nD) : tailProg96 (F := F) c = seq ((stepOps261.drop 12) ++ opsFrom262) := by
  show main_part96 (F := F) c >>= (fun _ => tailProg97 c) = _
  rw [main_part96_eq c, tail97 c, ← seq_append]
  refine congrArg seq ?_
  simp only [List.append_assoc, take_drop_append] <;> rfl
theorem tail95 (c : Dev nD) : tailProg95 (F := F) c = seq ((stepOps258.drop 18) ++ opsFrom259) := by
  show main_part95 (F := F) c >>= (fun _ => tailProg96 c) = _
  rw [main_part95_eq c, tail96 c, ← seq_append]
  refine congrArg seq ?_
  simp only [List.append_assoc, take_drop_append] <;> rfl
theorem tail94 (c : Dev nD) : tailProg94 (F := F) c = seq ((stepOps256.drop 2) ++ opsFrom257) := by
  show main_part94 (F := F) c >>= (fun _ => tailProg95 c) = _
  rw [main_part94_eq c, tail95 c, ← seq_append]
  refine congrArg seq ?_
  simp only [List.append_assoc, take_drop_append] <;> rfl
theorem tail93 (c : Dev nD) : tailProg93 (F := F) c = seq ((stepOps253.drop 8) ++ opsFrom254) := by
  show main_part93 (F := F) c >>= (fun _ => tailProg94 c) = _
  rw [main_part93_eq c, tail94 c, ← seq_append]
  refine congrArg seq ?_
  simp only [List.append_assoc, take_drop_append] <;> rfl
theorem tail92 (c : Dev nD) : tailProg92 (F := F) c = seq ((stepOps250.drop 14) ++ opsFrom251) := by
  show main_part92 (F := F) c >>= (fun _ => tailProg93 c) = _
  rw [main_part92_eq c, tail93 c, ← seq_append]
  refine congrArg seq ?_
  simp only [List.append_assoc, take_drop_append] <;> rfl
theorem tail91 (c : Dev nD) : tailProg91 (F := F) c = seq ((stepOps247.drop 20) ++ opsFrom248) := by
  show main_part91 (F := F) c >>= (fun _ => tailProg92 c) = _
  rw [main_part91_eq c, tail92 c, ← seq_append]
  refine congrArg seq ?_
  simp only [List.append_assoc, take_drop_append] <;> rfl
theorem tail90 (c : Dev nD) : tailProg90 (F := F) c = seq ((stepOps245.drop 4) ++ opsFrom246) := by
  show main_part90 (F := F) c >>= (fun _ => tailProg91 c) = _
  rw [main_part90_eq c, tail91 c, ← seq_append]
  refine congrArg seq ?_
  simp only [List.append_assoc, take_drop_append] <;> rfl
theorem tail89 (c : Dev nD) : tailProg89 (F := F) c = seq ((stepOps242.drop 10) ++ opsFrom243) := by
  show main_part89 (F := F) c >>= (fun _ => tailProg90 c) = _
  rw [main_part89_eq c, tail90 c, ← seq_append]
  refine congrArg seq ?_
  simp only [List.append_assoc, take_drop_append] <;> rfl
theorem tail88 (c : Dev nD) : tailProg88 (F := F) c = seq ((stepOps239.drop 16) ++ opsFrom240) := by
  show main_part88 (F := F) c >>= (fun _ => tailProg89 c) = _
  rw [main_part88_eq c, tail89 c, ← seq_append]
  refine congrArg seq ?_
  simp only [List.append_assoc, take_drop_append] <;> rfl
theorem tail87 (c : Dev nD) : tailProg87 (F := F) c = seq (opsFrom237) := by
  show main_part87 (F := F) c >>= (fun _ => tailProg88 c) = _
  rw [main_part87_eq c, tail88 c, ← seq_append]
  refine congrArg seq ?_
  simp only [List.append_assoc, take_drop_append] <;> rfl
theorem tail86 (c : Dev nD) : tailProg86 (F := F) c = seq ((stepOps234.drop 6) ++ opsFrom235) := by
  show main_part86 (F := F) c >>= (fun _ => tailProg87 c) = _
  rw [main_part86_eq c, tail87 c, ← seq_append]
  refine congrArg seq ?_
  simp only [List.append_assoc, take_drop_append] <;> rfl
theorem tail85 (c : Dev nD) : tailProg85 (F := F) c = seq ((stepOps231.drop 12) ++ opsFrom232) := by
  show main_part85 (F := F) c >>= (fun _ => tailProg86 c) = _
  rw [main_part85_eq c, tail86 c, ← seq_append]
  refine congrArg seq ?_
  simp only [List.append_assoc, take_drop_append] <;> rfl
theorem tail84 (c : Dev nD) : tailProg84 (F := F) c = seq ((stepOps228.drop 18) ++ opsFrom229) := by
  show main_part84 (F := F) c >>= (fun _ => tailProg85 c) = _
  rw [main_part84_eq c, tail85 c, ← seq_append]
  refine congrArg seq ?_
  simp only [List.append_assoc, take_drop_append] <;> rfl
theorem tail83 (c : Dev nD) : tailProg83 (F := F) c = seq ((stepOps226.drop 2) ++ opsFrom227) := by
  show main_part83 (F := F) c >>= (fun _ => tailProg84 c) = _
  rw [main_part83_eq c, tail84 c, ← seq_append]
  refine congrArg seq ?_
  simp only [List.append_assoc, take_drop_append] <;> rfl
theorem tail82 (c : Dev nD) : tailProg82 (F := F) c = seq ((stepOps223.drop 8) ++ opsFrom224) := by
  show main_part82 (F := F) c >>= (fun _ => tailProg83 c) = _
  rw [main_part82_eq c, tail83 c, ← seq_append]
  refine congrArg seq ?_
  simp only [List.append_assoc, take_drop_append] <;> rfl
theorem tail81 (c : Dev nD) : tailProg81 (F := F) c = seq ((stepOps220.drop 14) ++ opsFrom221) := by
  show main_part81 (F := F) c >>= (fun _ => tailProg82 c) = _
  rw [main_part81_eq c, tail82 c, ← seq_append]
  refine congrArg seq ?_
  simp only [List.append_assoc, take_drop_append] <;> rfl
theorem tail80 (c : Dev nD) : tailProg80 (F := F) c = seq ((stepOps217.drop 20) ++ opsFrom218) := by
  show main_part80 (F := F) c >>= (fun _ => tailProg81 c) = _
  rw [main_part80_eq c, tail81 c, ← seq_append]
  refine congrArg seq ?_
  simp only [List.append_assoc, take_drop_append] <;> rfl
theorem tail79 (c : Dev nD) : tailProg79 (F := F) c = seq ((stepOps215.drop 4) ++ opsFrom216) := by
  show main_part79 (F := F) c >>= (fun _ => tailProg80 c) = _
  rw [main_part79_eq c, tail80 c, ← seq_append]
  refine congrArg seq ?_
  simp only [List.append_assoc, take_drop_append] <;> rfl
theorem tail78 (c : Dev nD) : tailProg78 (F := F) c = seq ((stepOps212.drop 10) ++ opsFrom213) := by
  show main_part78 (F := F) c >>= (fun _ => tailProg79 c) = _
  rw [main_part78_eq c, tail79 c, ← seq_append]
  refine congrArg seq ?_
  simp only [List.append_assoc, take_drop_append] <;> rfl
theorem tail77 (c : Dev nD) : tailProg77 (F := F) c = seq ((stepOps209.drop 16) ++ opsFrom210) := by
  show main_part77 (F := F) c >>= (fun _ => tailProg78 c) = _
  rw [main_part77_eq c, tail78 c, ← seq_append]
  refine congrArg seq ?_
  simp only [List.append_assoc, take_drop_append] <;> rfl
theorem tail76 (c : Dev nD) : tailProg76 (F := F) c = seq (opsFrom207) := by
  show main_part76 (F := F) c >>= (fun _ => tailProg77 c) = _
  rw [main_part76_eq c, tail77 c, ← seq_append]
  refine congrArg seq ?_
  simp only [List.append_assoc, take_drop_append] <;> rfl
theorem tail75 (c : Dev nD) : tailProg75 (F := F) c = seq ((stepOps204.drop 6) ++ opsFrom205) := by
  show main_part75 (F := F) c >>= (fun _ => tailProg76 c) = _
  rw [main_part75_eq c, tail76 c, ← seq_append]
  refine congrArg seq ?_
  simp only [List.append_assoc, take_drop_append] <;> rfl
theorem tail74 (c : Dev nD) : tailProg74 (F := F) c = seq ((stepOps201.drop 12) ++ opsFrom202) := by
  show main_part74 (F := F) c >>= (fun _ => tailProg75 c) = _
  rw [main_part74_eq c, tail75 c, ← seq_append]
  refine congrArg seq ?_
  simp only [List.append_assoc, take_drop_append] <;> rfl
theorem tail73 (c : Dev nD) : tailProg73 (F := F) c = seq ((stepOps198.drop 18) ++ opsFrom199) := by
  show main_part73 (F := F) c >>= (fun _ => tailProg74 c) = _
  rw [main_part73_eq c, tail74 c, ← seq_append]
  refine congrArg seq ?_
  simp only [List.append_assoc, take_drop_append] <;> rfl
theorem tail72 (c : Dev nD) : tailProg72 (F := F) c = seq ((stepOps196.drop 2) ++ opsFrom197) := by
  show main_part72 (F := F) c >>= (fun _ => tailProg73 c) = _
  rw [main_part72_eq c, tail73 c, ← seq_append]
  refine congrArg seq ?_
  simp only [List.append_assoc, take_drop_append] <;> rfl
theorem tail71 (c : Dev nD) : tailProg71 (F := F) c = seq ((stepOps193.drop 8) ++ opsFrom194) := by
  show main_part71 (F := F) c >>= (fun _ => tailProg72 c) = _
  rw [main_part71_eq c, tail72 c, ← seq_append]
  refine congrArg seq ?_
  simp only [List.append_assoc, take_drop_append] <;> rfl
theorem tail70 (c : Dev nD) : tailProg70 (F := F) c = seq ((stepOps190.drop 14) ++ opsFrom191) := by
  show main_part70 (F := F) c >>= (fun _ => tailProg71 c) = _
  rw [main_part70_eq c, tail71 c, ← seq_append]
  refine congrArg seq ?_
  simp only [List.append_assoc, take_drop_append] <;> rfl
theorem tail69 (c : Dev nD) : tailProg69 (F := F) c = seq ((stepOps187.drop 20) ++ opsFrom188) := by
  show main_part69 (F := F) c >>= (fun _ => tailProg70 c) = _
  rw [main_part69_eq c, tail70 c, ← seq_append]
  refine congrArg seq ?_
  simp only [List.append_assoc, take_drop_append] <;> rfl
theorem tail68 (c : Dev nD) : tailProg68 (F := F) c = seq ((stepOps185.drop 4) ++ opsFrom186) := by
  show main_part68 (F := F) c >>= (fun _ => tailProg69 c) = _
  rw [main_part68_eq c, tail69 c, ← seq_append]
  refine congrArg seq ?_
  simp only [List.append_assoc, take_drop_append] <;> rfl
theorem tail67 (c : Dev nD) : tailProg67 (F := F) c = seq ((stepOps182.drop 10) ++ opsFrom183) := by
  show main_part67 (F := F) c >>= (fun _ => tailProg68 c) = _
  rw [main_part67_eq c, tail68 c, ← seq_append]
  refine congrArg seq ?_
  simp only [List.append_assoc, take_drop_append] <;> rfl
theorem tail66 (c : Dev nD) : tailProg66 (F := F) c = seq ((stepOps179.drop 16) ++ opsFrom180) := by
  show main_part66 (F := F) c >>= (fun _ => tailProg67 c) = _
  rw [main_part66_eq c, tail67 c, ← seq_append]
  refine congrArg seq ?_
  simp only [List.append_assoc, take_drop_append] <;> rfl
theorem tail65 (c : Dev nD) : tailProg65 (F := F) c = seq (opsFrom177) := by
  show main_part65 (F := F) c >>= (fun _ => tailProg66 c) = _
  rw [main_part65_eq c, tail66 c, ← seq_append]
  refine congrArg seq ?_
  simp only [List.append_assoc, take_drop_append] <;> rfl
theorem tail64 (c : Dev nD) : tailProg64 (F := F) c = seq ((stepOps174.drop 6) ++ opsFrom175) := by
  show main_part64 (F := F) c >>= (fun _ => tailProg65 c) = _
  rw [main_part64_eq c, tail65 c, ← seq_append]
  refine congrArg seq ?_
  simp only [List.append_assoc, take_drop_append] <;> rfl
theorem tail63 (c : Dev nD) : tailProg63 (F := F) c = seq ((stepOps171.drop 12) ++ opsFrom172) := by
  show main_part63 (F := F) c >>= (fun _ => tailProg64 c) = _
  rw [main_part63_eq c, tail64 c, ← seq_append]
  refine congrArg seq ?_
  simp only [List.append_assoc, take_drop_append] <;> rfl
theorem tail62 (c : Dev nD) : tailProg62 (F := F) c = seq ((stepOps168.drop 18) ++ opsFrom169) := by
  show main_part62 (F := F) c >>= (fun _ => tailProg63 c) = _
  rw [main_part62_eq c, tail63 c, ← seq_append]
  refine congrArg seq ?_
  simp only [List.append_assoc, take_drop_append] <;> rfl
theorem tail61 (c : Dev nD) : tailProg61 (F := F) c = seq ((stepOps166.drop 2) ++ opsFrom167) := by
  show main_part61 (F := F) c >>= (fun _ => tailProg62 c) = _
  rw [main_part61_eq c, tail62 c, ← seq_append]
  refine congrArg seq ?_
  simp only [List.append_assoc, take_drop_append] <;> rfl
theorem tail60 (c : Dev nD) : tailProg60 (F := F) c = seq ((stepOps163.drop 8) ++ opsFrom164) := by
  show main_part60 (F := F) c >>= (fun _ => tailProg61 c) = _
  rw [main_part60_eq c, tail61 c, ← seq_append]
  refine congrArg seq ?_
  simp only [List.append_assoc, take_drop_append] <;> rfl
theorem tail59 (c : Dev nD) : tailProg59 (F := F) c = seq ((stepOps160.drop 14) ++ opsFrom161) := by
  show main_part59 (F := F) c >>= (fun _ => tailProg60 c) = _
  rw [main_part59_eq c, tail60 c, ← seq_append]
  refine congrArg seq ?_
  simp only [List.append_assoc, take_drop_append] <;> rfl
theorem tail58 (c : Dev nD) : tailProg58 (F := F) c = seq ((stepOps157.drop 20) ++ opsFrom158) := by
  show main_part58 (F := F) c >>= (fun _ => tailProg59 c) = _
  rw [main_part58_eq c, tail59 c, ← seq_append]
  refine congrArg seq ?_
  simp only [List.append_assoc, take_drop_append] <;> rfl
theorem tail57 (c : Dev nD) : tailProg57 (F := F) c = seq ((stepOps155.drop 4) ++ opsFrom156) := by
  show main_part57 (F := F) c >>= (fun _ => tailProg58 c) = _
  rw [main_part57_eq c, tail58 c, ← seq_append]
  refine congrArg seq ?_
  simp only [List.append_assoc, take_drop_append] <;> rfl
theorem tail56 (c : Dev nD) : tailProg56 (F := F) c = seq ((stepOps152.drop 10) ++ opsFrom153) := by
  show main_part56 (F := F) c >>= (fun _ => tailProg57 c) = _
  rw [main_part56_eq c, tail57 c, ← seq_append]
  refine congrArg seq ?_
  simp only [List.append_assoc, take_drop_append] <;> rfl
theorem tail55 (c : Dev nD) : tailProg55 (F := F) c = seq ((stepOps149.drop 16) ++ opsFrom150) := by
  show main_part55 (F := F) c >>= (fun _ => tailProg56 c) = _
  rw [main_part55_eq c, tail56 c, ← seq_append]
  refine congrArg seq ?_
  simp only [List.append_assoc, take_drop_append] <;> rfl
theorem tail54 (c : Dev nD) : tailProg54 (F := F) c = seq (opsFrom147) := by
  show main_part54 (F := F) c >>= (fun _ => tailProg55 c) = _
  rw [main_part54_eq c, tail55 c, ← seq_append]
  refine congrArg seq ?_
  simp only [List.append_assoc, take_drop_append] <;> rfl
theorem tail53 (c : Dev nD) : tailProg53 (F := F) c = seq ((stepOps144.drop 6) ++ opsFrom145) := by
  show main_part53 (F := F) c >>= (fun _ => tailProg54 c) = _
  rw [main_part53_eq c, tail54 c, ← seq_append]
  refine congrArg seq ?_
  simp only [List.append_assoc, take_drop_append] <;> rfl
theorem tail52 (c : Dev nD) : tailProg52 (F := F) c = seq ((stepOps141.drop 12) ++ opsFrom142) := by
  show main_part52 (F := F) c >>= (fun _ => tailProg53 c) = _
  rw [main_part52_eq c, tail53 c, ← seq_append]
  refine congrArg seq ?_
  simp only [List.append_assoc, take_drop_append] <;> rfl
theorem tail51 (c : Dev nD) : tailProg51 (F := F) c = seq ((stepOps138.drop 18) ++ opsFrom139) := by
  show main_part51 (F := F) c >>= (fun _ => tailProg52 c) = _
  rw [main_part51_eq c, tail52 c, ← seq_append]
  refine congrArg seq ?_
  simp only [List.append_assoc, take_drop_append] <;> rfl
theorem tail50 (c : Dev nD) : tailProg50 (F := F) c = seq ((stepOps136.drop 2) ++ opsFrom137) := by
  show main_part50 (F := F) c >>= (fun _ => tailProg51 c) = _
  rw [main_part50_eq c, tail51 c, ← seq_append]
  refine congrArg seq ?_
  simp only [List.append_assoc, take_drop_append] <;> rfl
theorem tail49 (c : Dev nD) : tailProg49 (F := F) c = seq ((stepOps133.drop 8) ++ opsFrom134) := by
  show main_part49 (F := F) c >>= (fun _ => tailProg50 c) = _
  rw [main_part49_eq c, tail50 c, ← seq_append]
  refine congrArg seq ?_
  simp only [List.append_assoc, take_drop_append] <;> rfl
theorem tail48 (c : Dev nD) : tailProg48 (F := F) c = seq ((stepOps130.drop 14) ++ opsFrom131) := by
  show main_part48 (F := F) c >>= (fun _ => tailProg49 c) = _
  rw [main_part48_eq c, tail49 c, ← seq_append]
  refine congrArg seq ?_
  simp only [List.append_assoc, take_drop_append] <;> rfl
theorem tail47 (c : Dev nD) : tailProg47 (F := F) c = seq ((stepOps127.drop 20) ++ opsFrom128) := by
  show main_part47 (F := F) c >>= (fun _ => tailProg48 c) = _
  rw [main_part47_eq c, tail48 c, ← seq_append]
  refine congrArg seq ?_
  simp only [List.append_assoc, take_drop_append] <;> rfl
theorem tail46 (c : Dev nD) : tailProg46 (F := F) c = seq ((stepOps125.drop 4) ++ opsFrom126) := by
  show main_part46 (F := F) c >>= (fun _ => tailProg47 c) = _
  rw [main_part46_eq c, tail47 c, ← seq_append]
  refine congrArg seq ?_
  simp only [List.append_assoc, take_drop_append] <;> rfl
theorem tail45 (c : Dev nD) : tailProg45 (F := F) c = seq ((stepOps122.drop 10) ++ opsFrom123) := by
  show main_part45 (F := F) c >>= (fun _ => tailProg46 c) = _
  rw [main_part45_eq c, tail46 c, ← seq_append]
  refine congrArg seq ?_
  simp only [List.append_assoc, take_drop_append] <;> rfl
theorem tail44 (c : Dev nD) : tailProg44 (F := F) c = seq ((stepOps119.drop 16) ++ opsFrom120) := by
  show main_part44 (F := F) c >>= (fun _ => tailProg45 c) = _
  rw [main_part44_eq c, tail45 c, ← seq_append]
  refine congrArg seq ?_
  simp only [List.append_assoc, take_drop_append] <;> rfl
theorem tail43 (c : Dev nD) : tailProg43 (F := F) c = seq (opsFrom117) := by
  show main_part43 (F := F) c >>= (fun _ => tailProg44 c) = _
  rw [main_part43_eq c, tail44 c, ← seq_append]
  refine congrArg seq ?_
  simp only [List.append_assoc, take_drop_append] <;> rfl
theorem tail42 (c : Dev nD) : tailProg42 (F := F) c = seq ((stepOps114.drop 6) ++ opsFrom115) := by
  show main_part42 (F := F) c >>= (fun _ => tailProg43 c) = _
  rw [main_part42_eq c, tail43 c, ← seq_append]
  refine congrArg seq ?_
  simp only [List.append_assoc, take_drop_append] <;> rfl
theorem tail41 (c : Dev nD) : tailProg41 (F := F) c = seq ((stepOps111.drop 12) ++ opsFrom112) := by
  show main_part41 (F := F) c >>= (fun _ => tailProg42 c) = _
  rw [main_part41_eq c, tail42 c, ← seq_append]
  refine congrArg seq ?_
  simp only [List.append_assoc, take_drop_append] <;> rfl
theorem tail40 (c : Dev nD) : tailProg40 (F := F) c = seq ((stepOps108.drop 18) ++ opsFrom109) := by
  show main_part40 (F := F) c >>= (fun _ => tailProg41 c) = _
  rw [main_part40_eq c, tail41 c, ← seq_append]
  refine congrArg seq ?_
  simp only [List.append_assoc, take_drop_append] <;> rfl
theorem tail39 (c : Dev nD) : tailProg39 (F := F) c = seq ((stepOps106.drop 2) ++ opsFrom107) := by
  show main_part39 (F := F) c >>= (fun _ => tailProg40 c) = _
  rw [main_part39_eq c, tail40 c, ← seq_append]
  refine congrArg seq ?_
  simp only [List.append_assoc, take_drop_append] <;> rfl
theorem tail38 (c : Dev nD) : tailProg38 (F := F) c = seq ((stepOps103.drop 8) ++ opsFrom104) := by
  show main_part38 (F := F) c >>= (fun _ => tailProg39 c) = _
  rw [main_part38_eq c, tail39 c, ← seq_append]
  refine congrArg seq ?_
  simp only [List.append_assoc, take_drop_append] <;> rfl
theorem tail37 (c : Dev nD) : tailProg37 (F := F) c = seq ((stepOps100.drop 14) ++ opsFrom101) := by
  show main_part37 (F := F) c >>= (fun _ => tailProg38 c) = _
  rw [main_part37_eq c, tail38 c, ← seq_append]
  refine congrArg seq ?_
  simp only [List.append_assoc, take_drop_append] <;> rfl
theorem tail36 (c : Dev nD) : tailProg36 (F := F) c = seq ((stepOps97.drop 20) ++ opsFrom98) := by
  show main_part36 (F := F) c >>= (fun _ => tailProg37 c) = _
  rw [main_part36_eq c, tail37 c, ← seq_append]
  refine congrArg seq ?_
  simp only [List.append_assoc, take_drop_append] <;> rfl
theorem tail35 (c : Dev nD) : tailProg35 (F := F) c = seq ((stepOps95.drop 4) ++ opsFrom96) := by
  show main_part35 (F := F) c >>= (fun _ => tailProg36 c) = _
  rw [main_part35_eq c, tail36 c, ← seq_append]
  refine congrArg seq ?_
  simp only [List.append_assoc, take_drop_append] <;> rfl
theorem tail34 (c : Dev nD) : tailProg34 (F := F) c = seq ((stepOps92.drop 10) ++ opsFrom93) := by
  show main_part34 (F := F) c >>= (fun _ => tailProg35 c) = _
  rw [main_part34_eq c, tail35 c, ← seq_append]
  refine congrArg seq ?_
  simp only [List.append_assoc, take_drop_append] <;> rfl
theorem tail33 (c : Dev nD) : tailProg33 (F := F) c = seq ((stepOps89.drop 16) ++ opsFrom90) := by
  show main_part33 (F := F) c >>= (fun _ => tailProg34 c) = _
  rw [main_part33_eq c, tail34 c, ← seq_append]
  refine congrArg seq ?_
  simp only [List.append_assoc, take_drop_append] <;> rfl
theorem tail32 (c : Dev nD) : tailProg32 (F := F) c = seq (opsFrom87) := by
  show main_part32 (F := F) c >>= (fun _ => tailProg33 c) = _
  rw [main_part32_eq c, tail33 c, ← seq_append]
  refine congrArg seq ?_
  simp only [List.append_assoc, take_drop_append] <;> rfl
theorem tail31 (c : Dev nD) : tailProg31 (F := F) c = seq ((stepOps84.drop 6) ++ opsFrom85) := by
  show main_part31 (F := F) c >>= (fun _ => tailProg32 c) = _
  rw [main_part31_eq c, tail32 c, ← seq_append]
  refine congrArg seq ?_
  simp only [List.append_assoc, take_drop_append] <;> rfl
theorem tail30 (c : Dev nD) : tailProg30 (F := F) c = seq ((stepOps81.drop 12) ++ opsFrom82) := by
  show main_part30 (F := F) c >>= (fun _ => tailProg31 c) = _
  rw [main_part30_eq c, tail31 c, ← seq_append]
  refine congrArg seq ?_
  simp only [List.append_assoc, take_drop_append] <;> rfl
theorem tail29 (c : Dev nD) : tailProg29 (F := F) c = seq ((stepOps78.drop 18) ++ opsFrom79) := by
  show main_part29 (F := F) c >>= (fun _ => tailProg30 c) = _
  rw [main_part29_eq c, tail30 c, ← seq_append]
  refine congrArg seq ?_
  simp only [List.append_assoc, take_drop_append] <;> rfl
theorem tail28 (c : Dev nD) : tailProg28 (F := F) c = seq ((stepOps76.drop 2) ++ opsFrom77) := by
  show main_part28 (F := F) c >>= (fun _ => tailProg29 c) = _
  rw [main_part28_eq c, tail29 c, ← seq_append]
  refine congrArg seq ?_
  simp only [List.append_assoc, take_drop_append] <;> rfl
theorem tail27 (c : Dev nD) : tailProg27 (F := F) c = seq ((stepOps73.drop 8) ++ opsFrom74) := by
  show main_part27 (F := F) c >>= (fun _ => tailProg28 c) = _
  rw [main_part27_eq c, tail28 c, ← seq_append]
  refine congrArg seq ?_
  simp only [List.append_assoc, take_drop_append] <;> rfl
theorem tail26 (c : Dev nD) : tailProg26 (F := F) c = seq ((stepOps70.drop 14) ++ opsFrom71) := by
  show main_part26 (F := F) c >>= (fun _ => tailProg27 c) = _
  rw [main_part26_eq c, tail27 c, ← seq_append]
  refine congrArg seq ?_
  simp only [List.append_assoc, take_drop_append] <;> rfl
theorem tail25 (c : Dev nD) : tailProg25 (F := F) c = seq ((stepOps67.drop 20) ++ opsFrom68) := by
  show main_part25 (F := F) c >>= (fun _ => tailProg26 c) = _
  rw [main_part25_eq c, tail26 c, ← seq_append]
  refine congrArg seq ?_
  simp only [List.append_assoc, take_drop_append] <;> rfl
theorem tail24 (c : Dev nD) : tailProg24 (F := F) c = seq ((stepOps65.drop 4) ++ opsFrom66) := by
  show main_part24 (F := F) c >>= (fun _ => tailProg25 c) = _
  rw [main_part24_eq c, tail25 c, ← seq_append]
  refine congrArg seq ?_
  simp only [List.append_assoc, take_drop_append] <;> rfl
theorem tail23 (c : Dev nD) : tailProg23 (F := F) c = seq ((stepOps62.drop 10) ++ opsFrom63) := by
  show main_part23 (F := F) c >>= (fun _ => tailProg24 c) = _
  rw [main_part23_eq c, tail24 c, ← seq_append]
  refine congrArg seq ?_
  simp only [List.append_assoc, take_drop_append] <;> rfl
theorem tail22 (c : Dev nD) : tailProg22 (F := F) c = seq ((stepOps59.drop 16) ++ opsFrom60) := by
  show main_part22 (F := F) c >>= (fun _ => tailProg23 c) = _
  rw [main_part22_eq c, tail23 c, ← seq_append]
  refine congrArg seq ?_
  simp only [List.append_assoc, take_drop_append] <;> rfl
theorem tail21 (c : Dev nD) : tailProg21 (F := F) c = seq (opsFrom57) := by
  show main_part21 (F := F) c >>= (fun _ => tailProg22 c) = _
  rw [main_part21_eq c, tail22 c, ← seq_append]
  refine congrArg seq ?_
  simp only [List.append_assoc, take_drop_append] <;> rfl
theorem tail20 (c : Dev nD) : tailProg20 (F := F) c = seq ((stepOps54.drop 6) ++ opsFrom55) := by
  show main_part20 (F := F) c >>= (fun _ => tailProg21 c) = _
  rw [main_part20_eq c, tail21 c, ← seq_append]
  refine congrArg seq ?_
  simp only [List.append_assoc, take_drop_append] <;> rfl
theorem tail19 (c : Dev nD) : tailProg19 (F := F) c = seq ((stepOps51.drop 12) ++ opsFrom52) := by
  show main_part19 (F := F) c >>= (fun _ => tailProg20 c) = _
  rw [main_part19_eq c, tail20 c, ← seq_append]
  refine congrArg seq ?_
  simp only [List.append_assoc, take_drop_append] <;> rfl
theorem tail18 (c : Dev nD) : tailProg18 (F := F) c = seq ((stepOps48.drop 18) ++ opsFrom49) := by
  show main_part18 (F := F) c >>= (fun _ => tailProg19 c) = _
  rw [main_part18_eq c, tail19 c, ← seq_append]
  refine congrArg seq ?_
  simp only [List.append_assoc, take_drop_append] <;> rfl
theorem tail17 (c : Dev nD) : tailProg17 (F := F) c = seq ((stepOps46.drop 2) ++ opsFrom47) := by
  show main_part17 (F := F) c >>= (fun _ => tailProg18 c) = _
  rw [main_part17_eq c, tail18 c, ← seq_append]
  refine congrArg seq ?_
  simp only [List.append_assoc, take_drop_append] <;> rfl
theorem tail16 (c : Dev nD) : tailProg16 (F := F) c = seq ((stepOps43.drop 8) ++ opsFrom44) := by
  show main_part16 (F := F) c >>= (fun _ => tailProg17 c) = _
  rw [main_part16_eq c, tail17 c, ← seq_append]
  refine congrArg seq ?_
  simp only [List.append_assoc, take_drop_append] <;> rfl
theorem tail15 (c : Dev nD) : tailProg15 (F := F) c = seq ((stepOps40.drop 14) ++ opsFrom41) := by
  show main_part15 (F := F) c >>= (fun _ => tailProg16 c) = _
  rw [main_part15_eq c, tail16 c, ← seq_append]
  refine congrArg seq ?_
  simp only [List.append_assoc, take_drop_append] <;> rfl
theorem tail14 (c : Dev nD) : tailProg14 (F := F) c = seq ((stepOps37.drop 20) ++ opsFrom38) := by
  show main_part14 (F := F) c >>= (fun _ => tailProg15 c) = _
  rw [main_part14_eq c, tail15 c, ← seq_append]
  refine congrArg seq ?_
  simp only [List.append_assoc, take_drop_append] <;> rfl
theorem tail13 (c : Dev nD) : tailProg13 (F := F) c = seq ((stepOps35.drop 4) ++ opsFrom36) := by
  show main_part13 (F := F) c >>= (fun _ => tailProg14 c) = _
  rw [main_part13_eq c, tail14 c, ← seq_append]
  refine congrArg seq ?_
  simp only [List.append_assoc, take_drop_append] <;> rfl
theorem tail12 (c : Dev nD) : tailProg12 (F := F) c = seq ((stepOps32.drop 10) ++ opsFrom33) := by
  show main_part12 (F := F) c >>= (fun _ => tailProg13 c) = _
  rw [main_part12_eq c, tail13 c, ← seq_append]
  refine congrArg seq ?_
  simp only [List.append_assoc, take_drop_append] <;> rfl
theorem tail11 (c : Dev nD) : tailProg11 (F := F) c = seq ((stepOps29.drop 16) ++ opsFrom30) := by
  show main_part11 (F := F) c >>= (fun _ => tailProg12 c) = _
  rw [main_part11_eq c, tail12 c, ← seq_append]
  refine congrArg seq ?_
  simp only [List.append_assoc, take_drop_append] <;> rfl
theorem tail10 (c : Dev nD) : tailProg10 (F := F) c = seq (opsFrom27) := by
  show main_part10 (F := F) c >>= (fun _ => tailProg11 c) = _
  rw [main_part10_eq c, tail11 c, ← seq_append]
  refine congrArg seq ?_
  simp only [List.append_assoc, take_drop_append] <;> rfl
theorem tail9 (c : Dev nD) : tailProg9 (F := F) c = seq ((stepOps24.drop 6) ++ opsFrom25) := by
  show main_part9 (F := F) c >>= (fun _ => tailProg10 c) = _
  rw [main_part9_eq c, tail10 c, ← seq_append]
  refine congrArg seq ?_
  simp only [List.append_assoc, take_drop_append] <;> rfl
theorem tail8 (c : Dev nD) : tailProg8 (F := F) c = seq ((stepOps21.drop 12) ++ opsFrom22) := by
  show main_part8 (F := F) c >>= (fun _ => tailProg9 c) = _
  rw [main_part8_eq c, tail9 c, ← seq_append]
  refine congrArg seq ?_
  simp only [List.append_assoc, take_drop_append] <;> rfl
theorem tail7 (c : Dev nD) : tailProg7 (F := F) c = seq ((stepOps18.drop 18) ++ opsFrom19) := by
  show main_part7 (F := F) c >>= (fun _ => tailProg8 c) = _
  rw [main_part7_eq c, tail8 c, ← seq_append]
  refine congrArg seq ?_
  simp only [List.append_assoc, take_drop_append] <;> rfl
theorem tail6 (c : Dev nD) : tailProg6 (F := F) c = seq ((stepOps16.drop 2) ++ opsFrom17) := by
  show main_part6 (F := F) c >>= (fun _ => tailProg7 c) = _
  rw [main_part6_eq c, tail7 c, ← seq_append]
  refine congrArg seq ?_
  simp only [List.append_assoc, take_drop_append] <;> rfl
theorem tail5 (c : Dev nD) : tailProg5 (F := F) c = seq ((stepOps13.drop 8) ++ opsFrom14) := by
  show main_part5 (F := F) c >>= (fun _ => tailProg6 c) = _
  rw [main_part5_eq c, tail6 c, ← seq_append]
  refine congrArg seq ?_
  simp only [List.append_assoc, take_drop_append] <;> rfl
theorem tail4 (c : Dev nD) : tailProg4 (F := F) c = seq ((stepOps10.drop 14) ++ opsFrom11) := by
  show main_part4 (F := F) c >>= (fun _ => tailProg5 c) = _
  rw [main_part4_eq c, tail5 c, ← seq_append]
  refine congrArg seq ?_
  simp only [List.append_assoc, take_drop_append] <;> rfl
theorem tail3 (c : Dev nD) : tailProg3 (F := F) c = seq ((stepOps7.drop 20) ++ opsFrom8) := by
  show main_part3 (F := F) c >>= (fun _ => tailProg4 c) = _
  rw [main_part3_eq c, tail4 c, ← seq_append]
  refine congrArg seq ?_
  simp only [List.append_assoc, take_drop_append] <;> rfl
theorem tail2 (c : Dev nD) : tailProg2 (F := F) c = seq ((stepOps5.drop 4) ++ opsFrom6) := by
  show main_part2 (F := F) c >>= (fun _ => tailProg3 c) = _
  rw [main_part2_eq c, tail3 c, ← seq_append]
  refine congrArg seq ?_
  simp only [List.append_assoc, take_drop_append] <;> rfl
theorem tail1 (c : Dev nD) : tailProg1 (F := F) c = seq ((stepOps2.drop 10) ++ opsFrom3) := by
  show main_part1 (F := F) c >>= (fun _ => tailProg2 c) = _
  rw [main_part1_eq c, tail2 c, ← seq_append]
  refine congrArg seq ?_
  simp only [List.append_assoc, take_drop_append] <;> rfl
theorem tail0 (c : Dev nD) : tailProg0 (F := F) c = seq (ops) := by
  show main_part0 (F := F) c >>= (fun _ => tailProg1 c) = _
  rw [main_part0_eq c, tail1 c, ← seq_append]
  refine congrArg seq ?_
  simp only [List.append_assoc, take_drop_append] <;> rfl

theorem main_eq (c : Dev nD) : main (F := F) c = seq ops := (main_tail c).trans (tail0 c)
theorem scopedRefs_eq : (Finset.univ.filter fun b : Ref sig .tc => b.isScoped) = ∅ := by
  refine Finset.filter_eq_empty_iff.mpr fun b _ => ?_
  rcases b with ⟨sp, i, h⟩
  rcases sp with _ | _ | ⟨_ | _⟩ | _
  all_goals first
    | exact Bool.false_ne_true
    | exact absurd h (by decide)
    | exact i.elim0
theorem scopedSems_eq : (Finset.univ.filter fun sm : SemLoc sig => sm.isScoped .tc) = ∅ := by decide

/-- On every device, for any float values, from any memory with zero counters: every weakly fair execution of @main terminates with
    each buffer of the core at the fold of the operations' results over its launch contents. -/
theorem run_after (m : (ℓ : Loc nD τ sig) → Buf (Elt F) ℓ) (ρ : Dev nD → PrngReg) :
    θ_run (defs (F := F)) (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ
    (fun _ => ops_fresh)

end Cert.ReferenceIdeal.RefRun

end
-- ==== Proof.RefValueArgs.lean ====
/-
  The reference's four argument arrays at a valuation of its buffers, at the types the step is stated over.
-/
import proofs.«900482_g7700000000000483_dist_ssm_v7x_xy2x2_y_b4_s256_d256_n16_f32_1_alg».proof.ReferenceIdeal
import proofs.«900482_g7700000000000483_dist_ssm_v7x_xy2x2_y_b4_s256_d256_n16_f32_1_alg».proof.Proof.RefValueStep
import Idealize.ShloMosaic.Lib.StableHlo.Run

noncomputable section

namespace Cert.ReferenceIdeal.RefValue

open Idealize.ShloMosaic Idealize.ShloMosaic.TcCoe Idealize.ShloMosaic.StableHlo Cert.ReferenceIdeal

variable [Cert.ReferenceIdeal.Facts]

/-- x : [4, 512, 256]. -/
abbrev aX (V0 : Valuation τ sig (Elt Ideal)) : FVec Ideal SY .f32 := V0 (Proc.devRef .tc main_arg0)
/-- A : [256, 16]. -/
abbrev aA (V0 : Valuation τ sig (Elt Ideal)) : FVec Ideal SA .f32 := V0 (Proc.devRef .tc main_arg1)
/-- B : [4, 512, 16]. -/
abbrev aB (V0 : Valuation τ sig (Elt Ideal)) : FVec Ideal SB .f32 := V0 (Proc.devRef .tc main_arg2)
/-- C : [4, 512, 16]. -/
abbrev aC (V0 : Valuation τ sig (Elt Ideal)) : FVec Ideal SB .f32 := V0 (Proc.devRef .tc main_arg3)

end Cert.ReferenceIdeal.RefValue

end
-- ==== Proof.RefValueIter.lean ====
/-
  The iterate of the reference's step is the recurrence of the specification: after the steps 0 … t the state array holds
  erec … t at every (b, d, n), and after t steps the result array holds yref on the rows below t and zero on the others.
-/
import proofs.«900482_g7700000000000483_dist_ssm_v7x_xy2x2_y_b4_s256_d256_n16_f32_1_alg».proof.Proof.Spec
import proofs.«900482_g7700000000000483_dist_ssm_v7x_xy2x2_y_b4_s256_d256_n16_f32_1_alg».proof.Proof.RefValueStep

noncomputable section

namespace Cert.ReferenceIdeal.RefValue

open Idealize.ShloMosaic Idealize.ShloMosaic.ValueIdx Cert.Spec
open scoped BigOperators

section
variable (X : FVec Ideal SY .f32) (A : FVec Ideal SA .f32) (B C : FVec Ideal SB .f32)

/-- The state after the steps 0 … t (the step past the last time changes nothing; it is never taken). -/
def hI : ℕ → FVec Ideal SH .f32
  | 0 => if ht : 0 < 512 then stepH 0 ht X (decay A) B h0 else h0
  | t + 1 => if ht : t + 1 < 512 then stepH (t + 1) ht X (decay A) B (hI t) else hI t

/-- The result array after t steps. -/
def yJ : ℕ → FVec Ideal SY .f32
  | 0 => y0
  | t + 1 => if ht : t < 512 then stepY t ht C (hI X A B t) (yJ t) else yJ t

theorem hI_zero : hI X A B 0 = stepH 0 (by decide) X (decay A) B h0 := rfl

/-- The state at time t' = t + 1 is one step from the state at time t. -/
theorem hI_at (t t' : ℕ) (ht' : t' < 512) (e : t' = t + 1) : hI X A B t' = stepH t' ht' X (decay A) B (hI X A B t) := by
  subst e
  show (if ht : t + 1 < 512 then stepH (t + 1) ht X (decay A) B (hI X A B t) else hI X A B t) = _
  rw [dif_pos ht']

/-- The result array after t' = t + 1 steps is step t from the one after t steps. -/
theorem yJ_at (t t' : ℕ) (ht : t < 512) (e : t' = t + 1) :
    yJ X A B C t' = stepY t ht C (hI X A B t) (yJ X A B C t) := by
  subst e
  show (if ht : t < 512 then stepY t ht C (hI X A B t) (yJ X A B C t) else yJ X A B C t) = _
  rw [dif_pos ht]

theorem at3_of_lt {T k : ℕ} (Z : (⟨3, ![4, T, k]⟩ : Shape).Idx → EReal) (b : Fin 4) (s : ℕ) (j : Fin k) (h : s < T) :
    at3 Z b s j = Z (ix3 b ⟨s, h⟩ j) := by
  unfold at3; rw [dif_pos h]

/-- The state after the steps 0 … t is the recurrence at time t. -/
theorem hI_apply (t : ℕ) (ht : t < 512) (b : Fin 4) (d : Fin 256) (n : Fin 16) :
    hI X A B t (ix3 b d n) = erec (Ideal.exp (A (ix2 d n))) (fun s => at3 X b s d * at3 B b s n) t := by
  induction t with
  | zero =>
    rw [hI_zero, stepH_apply, h0_apply]
    show _ = (0 : EReal) * _ + (at3 X b 0 d * at3 B b 0 n)
    rw [at3_of_lt X b 0 d ht, at3_of_lt B b 0 n ht]
  | succ t ih =>
    rw [hI_at X A B t (t + 1) ht rfl, stepH_apply, ih (by omega)]
    show _ = erec _ _ t * _ + (at3 X b (t + 1) d * at3 B b (t + 1) n)
    rw [at3_of_lt X b (t + 1) d ht, at3_of_lt B b (t + 1) n ht]

/-- After t steps the result array holds the specification on the rows below t and zero on the others. -/
theorem yJ_apply (t : ℕ) (ht : t ≤ 512) (b : Fin 4) (s : Fin 512) (d : Fin 256) :
    yJ X A B C t (ix3 b s d) = if s.val < t then yref X A B C b s d else 0 := by
  induction t with
  | zero =>
    show y0 _ = _
    rw [y0_apply, if_neg (Nat.not_lt_zero _)]
  | succ t ih =>
    have ht' : t < 512 := by omega
    rw [yJ_at X A B C t (t + 1) ht' rfl]
    by_cases hs : s.val = t
    · have es : s = ⟨t, ht'⟩ := Fin.ext hs
      rw [es, stepY_hit, if_pos (by show t < t + 1; omega)]
      unfold yref
      refine Finset.sum_congr rfl fun n _ => ?_
      rw [hI_apply X A B t ht' b d n]
    · rw [stepY_miss t ht' C _ _ b s d hs, ih (by omega)]
      by_cases hlt : s.val < t
      · rw [if_pos hlt, if_pos (by omega)]
      · rw [if_neg hlt, if_neg (by omega)]

/-- After all 512 steps the result array is the specification everywhere. -/
theorem yJ_final (b : Fin 4) (s : Fin 512) (d : Fin 256) : yJ X A B C 512 (ix3 b s d) = yref X A B C b s d := by
  rw [yJ_apply X A B C 512 (Nat.le_refl _) b s d, if_pos s.isLt]

end

end Cert.ReferenceIdeal.RefValue

end
-- ==== Proof.RefTableChain.lean ====
/-
  The steps strung together: the buffer contents after the six operations before the loop and then after each step, read on
  the buffers the loop carries (the state: the iterate of the step; the result array: the result iterate) and on the buffers no
  step writes (the four arguments and the decay array).
-/
import proofs.«900482_g7700000000000483_dist_ssm_v7x_xy2x2_y_b4_s256_d256_n16_f32_1_alg».proof.Proof.RefTableStep00
import proofs.«900482_g7700000000000483_dist_ssm_v7x_xy2x2_y_b4_s256_d256_n16_f32_1_alg».proof.Proof.RefTableStep01
import proofs.«900482_g7700000000000483_dist_ssm_v7x_xy2x2_y_b4_s256_d256_n16_f32_1_alg».proof.Proof.RefTableStep02
import proofs.«900482_g7700000000000483_dist_ssm_v7x_xy2x2_y_b4_s256_d256_n16_f32_1_alg».proof.Proof.RefTableStep03
import proofs.«900482_g7700000000000483_dist_ssm_v7x_xy2x2_y_b4_s256_d256_n16_f32_1_alg».proof.Proof.RefTableStep04
import proofs.«900482_g7700000000000483_dist_ssm_v7x_xy2x2_y_b4_s256_d256_n16_f32_1_alg».proof.Proof.RefTableStep05
import proofs.«900482_g7700000000000483_dist_ssm_v7x_xy2x2_y_b4_s256_d256_n16_f32_1_alg».proof.Proof.RefTableStep06
import proofs.«900482_g7700000000000483_dist_ssm_v7x_xy2x2_y_b4_s256_d256_n16_f32_1_alg».proof.Proof.RefTableStep07
import proofs.«900482_g7700000000000483_dist_ssm_v7x_xy2x2_y_b4_s256_d256_n16_f32_1_alg».proof.Proof.RefTableStep08
import proofs.«900482_g7700000000000483_dist_ssm_v7x_xy2x2_y_b4_s256_d256_n16_f32_1_alg».proof.Proof.RefTableStep09
import proofs.«900482_g7700000000000483_dist_ssm_v7x_xy2x2_y_b4_s256_d256_n16_f32_1_alg».proof.Proof.RefTableStep10
import proofs.«900482_g7700000000000483_dist_ssm_v7x_xy2x2_y_b4_s256_d256_n16_f32_1_alg».proof.Proof.RefTableStep11
import proofs.«900482_g7700000000000483_dist_ssm_v7x_xy2x2_y_b4_s256_d256_n16_f32_1_alg».proof.Proof.RefTableStep12
import proofs.«900482_g7700000000000483_dist_ssm_v7x_xy2x2_y_b4_s256_d256_n16_f32_1_alg».proof.Proof.RefTableStep13
import proofs.«900482_g7700000000000483_dist_ssm_v7x_xy2x2_y_b4_s256_d256_n16_f32_1_alg».proof.Proof.RefTableStep14
import proofs.«900482_g7700000000000483_dist_ssm_v7x_xy2x2_y_b4_s256_d256_n16_f32_1_alg».proof.Proof.RefTableStep15
import proofs.«900482_g7700000000000483_dist_ssm_v7x_xy2x2_y_b4_s256_d256_n16_f32_1_alg».proof.Proof.RefTableStep16
import proofs.«900482_g7700000000000483_dist_ssm_v7x_xy2x2_y_b4_s256_d256_n16_f32_1_alg».proof.Proof.RefTableStep17
import proofs.«900482_g7700000000000483_dist_ssm_v7x_xy2x2_y_b4_s256_d256_n16_f32_1_alg».proof.Proof.RefTableStep18
import proofs.«900482_g7700000000000483_dist_ssm_v7x_xy2x2_y_b4_s256_d256_n16_f32_1_alg».proof.Proof.RefTableStep19
import proofs.«900482_g7700000000000483_dist_ssm_v7x_xy2x2_y_b4_s256_d256_n16_f32_1_alg».proof.Proof.RefTableStep20
import proofs.«900482_g7700000000000483_dist_ssm_v7x_xy2x2_y_b4_s256_d256_n16_f32_1_alg».proof.Proof.RefTableStep21
import proofs.«900482_g7700000000000483_dist_ssm_v7x_xy2x2_y_b4_s256_d256_n16_f32_1_alg».proof.Proof.RefTableStep22
import proofs.«900482_g7700000000000483_dist_ssm_v7x_xy2x2_y_b4_s256_d256_n16_f32_1_alg».proof.Proof.RefTableStep23
import proofs.«900482_g7700000000000483_dist_ssm_v7x_xy2x2_y_b4_s256_d256_n16_f32_1_alg».proof.Proof.RefTableStep24
import proofs.«900482_g7700000000000483_dist_ssm_v7x_xy2x2_y_b4_s256_d256_n16_f32_1_alg».proof.Proof.RefTableStep25
import proofs.«900482_g7700000000000483_dist_ssm_v7x_xy2x2_y_b4_s256_d256_n16_f32_1_alg».proof.Proof.RefTableStep26
import proofs.«900482_g7700000000000483_dist_ssm_v7x_xy2x2_y_b4_s256_d256_n16_f32_1_alg».proof.Proof.RefTableStep27
import proofs.«900482_g7700000000000483_dist_ssm_v7x_xy2x2_y_b4_s256_d256_n16_f32_1_alg».proof.Proof.RefTableStep28
import proofs.«900482_g7700000000000483_dist_ssm_v7x_xy2x2_y_b4_s256_d256_n16_f32_1_alg».proof.Proof.RefTableStep29
import proofs.«900482_g7700000000000483_dist_ssm_v7x_xy2x2_y_b4_s256_d256_n16_f32_1_alg».proof.Proof.RefTableStep30
import proofs.«900482_g7700000000000483_dist_ssm_v7x_xy2x2_y_b4_s256_d256_n16_f32_1_alg».proof.Proof.RefTableStep31
import proofs.«900482_g7700000000000483_dist_ssm_v7x_xy2x2_y_b4_s256_d256_n16_f32_1_alg».proof.Proof.RefValueArgs
import proofs.«900482_g7700000000000483_dist_ssm_v7x_xy2x2_y_b4_s256_d256_n16_f32_1_alg».proof.Proof.RefValueIter

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

/-- The contents after the operations before the loop. -/
def val0 (V0 : Valuation τ sig (Elt Ideal)) : Valuation τ sig (Elt Ideal) := after (preOps (F := Ideal)) V0
theorem val0_main_arg0 (V0 : Valuation τ sig (Elt Ideal)) : val0 V0 (Proc.devRef .tc main_arg0) = aX V0 :=
  after_keep _ 4 preOps_ok main_arg0 (by decide +kernel) V0
theorem val0_main_arg1 (V0 : Valuation τ sig (Elt Ideal)) : val0 V0 (Proc.devRef .tc main_arg1) = aA V0 :=
  after_keep _ 4 preOps_ok main_arg1 (by decide +kernel) V0
theorem val0_main_arg2 (V0 : Valuation τ sig (Elt Ideal)) : val0 V0 (Proc.devRef .tc main_arg2) = aB V0 :=
  after_keep _ 4 preOps_ok main_arg2 (by decide +kernel) V0
theorem val0_main_arg3 (V0 : Valuation τ sig (Elt Ideal)) : val0 V0 (Proc.devRef .tc main_arg3) = aC V0 :=
  after_keep _ 4 preOps_ok main_arg3 (by decide +kernel) V0
theorem val0_init (V0 : Valuation τ sig (Elt Ideal)) : val0 V0 (Proc.devRef .tc main_v0) = h0 ∧ val0 V0 (Proc.devRef .tc main_v1) = y0 ∧ val0 V0 (Proc.devRef .tc main_v3) = decay (aA V0) := by
  unfold val0
  simp only [preOps]
  after_results_simp
  first | exact ⟨rfl, rfl, rfl⟩ | fail "value"
theorem val0_main_v3 (V0 : Valuation τ sig (Elt Ideal)) : val0 V0 (Proc.devRef .tc main_v3) = decay (aA V0) := (val0_init V0).2.2
/-- The contents after step 0. -/
def val1 (V0 : Valuation τ sig (Elt Ideal)) : Valuation τ sig (Elt Ideal) := after (stepOps0 (F := Ideal)) (val0 V0)
theorem val1_main_arg0 (V0 : Valuation τ sig (Elt Ideal)) : val1 V0 (Proc.devRef .tc main_arg0) = aX V0 :=
  (after_keep _ 10 stepOps0_ok main_arg0 (by decide +kernel) (val0 V0)).trans (val0_main_arg0 V0)
theorem val1_main_arg1 (V0 : Valuation τ sig (Elt Ideal)) : val1 V0 (Proc.devRef .tc main_arg1) = aA V0 :=
  (after_keep _ 10 stepOps0_ok main_arg1 (by decide +kernel) (val0 V0)).trans (val0_main_arg1 V0)
theorem val1_main_arg2 (V0 : Valuation τ sig (Elt Ideal)) : val1 V0 (Proc.devRef .tc main_arg2) = aB V0 :=
  (after_keep _ 10 stepOps0_ok main_arg2 (by decide +kernel) (val0 V0)).trans (val0_main_arg2 V0)
theorem val1_main_arg3 (V0 : Valuation τ sig (Elt Ideal)) : val1 V0 (Proc.devRef .tc main_arg3) = aC V0 :=
  (after_keep _ 10 stepOps0_ok main_arg3 (by decide +kernel) (val0 V0)).trans (val0_main_arg3 V0)
theorem val1_main_v3 (V0 : Valuation τ sig (Elt Ideal)) : val1 V0 (Proc.devRef .tc main_v3) = decay (aA V0) :=
  (after_keep _ 10 stepOps0_ok main_v3 (by decide +kernel) (val0 V0)).trans (val0_main_v3 V0)
theorem val1_h (V0 : Valuation τ sig (Elt Ideal)) : val1 V0 (Proc.devRef .tc main_v15) = hI (aX V0) (aA V0) (aB V0) 0 := by
  refine ((step0_val (val0 V0)).1).trans ?_
  rw [val0_main_arg0 V0, val0_main_v3 V0, val0_main_arg2 V0, (val0_init V0).1]
  exact (hI_zero (aX V0) (aA V0) (aB V0)).symm
theorem val1_y (V0 : Valuation τ sig (Elt Ideal)) : val1 V0 (Proc.devRef .tc main_v23) = yJ (aX V0) (aA V0) (aB V0) (aC V0) 1 := by
  refine ((step0_val (val0 V0)).2).trans ?_
  rw [val0_main_arg0 V0, val0_main_v3 V0, val0_main_arg2 V0, val0_main_arg3 V0, (val0_init V0).1, (val0_init V0).2.1]
  rw [← hI_zero (aX V0) (aA V0) (aB V0)]
  exact (yJ_at (aX V0) (aA V0) (aB V0) (aC V0) 0 1 (by decide) rfl).symm
/-- The contents after step 1. -/
def val2 (V0 : Valuation τ sig (Elt Ideal)) : Valuation τ sig (Elt Ideal) := after (stepOps1 (F := Ideal)) (val1 V0)
theorem val2_main_arg0 (V0 : Valuation τ sig (Elt Ideal)) : val2 V0 (Proc.devRef .tc main_arg0) = aX V0 :=
  (after_keep _ 10 stepOps1_ok main_arg0 (by decide +kernel) (val1 V0)).trans (val1_main_arg0 V0)
theorem val2_main_arg1 (V0 : Valuation τ sig (Elt Ideal)) : val2 V0 (Proc.devRef .tc main_arg1) = aA V0 :=
  (after_keep _ 10 stepOps1_ok main_arg1 (by decide +kernel) (val1 V0)).trans (val1_main_arg1 V0)
theorem val2_main_arg2 (V0 : Valuation τ sig (Elt Ideal)) : val2 V0 (Proc.devRef .tc main_arg2) = aB V0 :=
  (after_keep _ 10 stepOps1_ok main_arg2 (by decide +kernel) (val1 V0)).trans (val1_main_arg2 V0)
theorem val2_main_arg3 (V0 : Valuation τ sig (Elt Ideal)) : val2 V0 (Proc.devRef .tc main_arg3) = aC V0 :=
  (after_keep _ 10 stepOps1_ok main_arg3 (by decide +kernel) (val1 V0)).trans (val1_main_arg3 V0)
theorem val2_main_v3 (V0 : Valuation τ sig (Elt Ideal)) : val2 V0 (Proc.devRef .tc main_v3) = decay (aA V0) :=
  (after_keep _ 10 stepOps1_ok main_v3 (by decide +kernel) (val1 V0)).trans (val1_main_v3 V0)
theorem val2_h (V0 : Valuation τ sig (Elt Ideal)) : val2 V0 (Proc.devRef .tc main_v35) = hI (aX V0) (aA V0) (aB V0) 1 := by
  refine ((step1_val (val1 V0)).1).trans ?_
  rw [val1_main_arg0 V0, val1_main_v3 V0, val1_main_arg2 V0, val1_h V0]
  exact (hI_at (aX V0) (aA V0) (aB V0) 0 1 (by decide) rfl).symm
theorem val2_y (V0 : Valuation τ sig (Elt Ideal)) : val2 V0 (Proc.devRef .tc main_v43) = yJ (aX V0) (aA V0) (aB V0) (aC V0) 2 := by
  refine ((step1_val (val1 V0)).2).trans ?_
  rw [val1_main_arg0 V0, val1_main_v3 V0, val1_main_arg2 V0, val1_main_arg3 V0, val1_h V0, val1_y V0]
  rw [← hI_at (aX V0) (aA V0) (aB V0) 0 1 (by decide) rfl]
  exact (yJ_at (aX V0) (aA V0) (aB V0) (aC V0) 1 2 (by decide) rfl).symm
/-- The contents after step 2. -/
def val3 (V0 : Valuation τ sig (Elt Ideal)) : Valuation τ sig (Elt Ideal) := after (stepOps2 (F := Ideal)) (val2 V0)
theorem val3_main_arg0 (V0 : Valuation τ sig (Elt Ideal)) : val3 V0 (Proc.devRef .tc main_arg0) = aX V0 :=
  (after_keep _ 10 stepOps2_ok main_arg0 (by decide +kernel) (val2 V0)).trans (val2_main_arg0 V0)
theorem val3_main_arg1 (V0 : Valuation τ sig (Elt Ideal)) : val3 V0 (Proc.devRef .tc main_arg1) = aA V0 :=
  (after_keep _ 10 stepOps2_ok main_arg1 (by decide +kernel) (val2 V0)).trans (val2_main_arg1 V0)
theorem val3_main_arg2 (V0 : Valuation τ sig (Elt Ideal)) : val3 V0 (Proc.devRef .tc main_arg2) = aB V0 :=
  (after_keep _ 10 stepOps2_ok main_arg2 (by decide +kernel) (val2 V0)).trans (val2_main_arg2 V0)
theorem val3_main_arg3 (V0 : Valuation τ sig (Elt Ideal)) : val3 V0 (Proc.devRef .tc main_arg3) = aC V0 :=
  (after_keep _ 10 stepOps2_ok main_arg3 (by decide +kernel) (val2 V0)).trans (val2_main_arg3 V0)
theorem val3_main_v3 (V0 : Valuation τ sig (Elt Ideal)) : val3 V0 (Proc.devRef .tc main_v3) = decay (aA V0) :=
  (after_keep _ 10 stepOps2_ok main_v3 (by decide +kernel) (val2 V0)).trans (val2_main_v3 V0)
theorem val3_h (V0 : Valuation τ sig (Elt Ideal)) : val3 V0 (Proc.devRef .tc main_v55) = hI (aX V0) (aA V0) (aB V0) 2 := by
  refine ((step2_val (val2 V0)).1).trans ?_
  rw [val2_main_arg0 V0, val2_main_v3 V0, val2_main_arg2 V0, val2_h V0]
  exact (hI_at (aX V0) (aA V0) (aB V0) 1 2 (by decide) rfl).symm
theorem val3_y (V0 : Valuation τ sig (Elt Ideal)) : val3 V0 (Proc.devRef .tc main_v63) = yJ (aX V0) (aA V0) (aB V0) (aC V0) 3 := by
  refine ((step2_val (val2 V0)).2).trans ?_
  rw [val2_main_arg0 V0, val2_main_v3 V0, val2_main_arg2 V0, val2_main_arg3 V0, val2_h V0, val2_y V0]
  rw [← hI_at (aX V0) (aA V0) (aB V0) 1 2 (by decide) rfl]
  exact (yJ_at (aX V0) (aA V0) (aB V0) (aC V0) 2 3 (by decide) rfl).symm
/-- The contents after step 3. -/
def val4 (V0 : Valuation τ sig (Elt Ideal)) : Valuation τ sig (Elt Ideal) := after (stepOps3 (F := Ideal)) (val3 V0)
theorem val4_main_arg0 (V0 : Valuation τ sig (Elt Ideal)) : val4 V0 (Proc.devRef .tc main_arg0) = aX V0 :=
  (after_keep _ 10 stepOps3_ok main_arg0 (by decide +kernel) (val3 V0)).trans (val3_main_arg0 V0)
theorem val4_main_arg1 (V0 : Valuation τ sig (Elt Ideal)) : val4 V0 (Proc.devRef .tc main_arg1) = aA V0 :=
  (after_keep _ 10 stepOps3_ok main_arg1 (by decide +kernel) (val3 V0)).trans (val3_main_arg1 V0)
theorem val4_main_arg2 (V0 : Valuation τ sig (Elt Ideal)) : val4 V0 (Proc.devRef .tc main_arg2) = aB V0 :=
  (after_keep _ 10 stepOps3_ok main_arg2 (by decide +kernel) (val3 V0)).trans (val3_main_arg2 V0)
theorem val4_main_arg3 (V0 : Valuation τ sig (Elt Ideal)) : val4 V0 (Proc.devRef .tc main_arg3) = aC V0 :=
  (after_keep _ 10 stepOps3_ok main_arg3 (by decide +kernel) (val3 V0)).trans (val3_main_arg3 V0)
theorem val4_main_v3 (V0 : Valuation τ sig (Elt Ideal)) : val4 V0 (Proc.devRef .tc main_v3) = decay (aA V0) :=
  (after_keep _ 10 stepOps3_ok main_v3 (by decide +kernel) (val3 V0)).trans (val3_main_v3 V0)
theorem val4_h (V0 : Valuation τ sig (Elt Ideal)) : val4 V0 (Proc.devRef .tc main_v75) = hI (aX V0) (aA V0) (aB V0) 3 := by
  refine ((step3_val (val3 V0)).1).trans ?_
  rw [val3_main_arg0 V0, val3_main_v3 V0, val3_main_arg2 V0, val3_h V0]
  exact (hI_at (aX V0) (aA V0) (aB V0) 2 3 (by decide) rfl).symm
theorem val4_y (V0 : Valuation τ sig (Elt Ideal)) : val4 V0 (Proc.devRef .tc main_v83) = yJ (aX V0) (aA V0) (aB V0) (aC V0) 4 := by
  refine ((step3_val (val3 V0)).2).trans ?_
  rw [val3_main_arg0 V0, val3_main_v3 V0, val3_main_arg2 V0, val3_main_arg3 V0, val3_h V0, val3_y V0]
  rw [← hI_at (aX V0) (aA V0) (aB V0) 2 3 (by decide) rfl]
  exact (yJ_at (aX V0) (aA V0) (aB V0) (aC V0) 3 4 (by decide) rfl).symm
/-- The contents after step 4. -/
def val5 (V0 : Valuation τ sig (Elt Ideal)) : Valuation τ sig (Elt Ideal) := after (stepOps4 (F := Ideal)) (val4 V0)
theorem val5_main_arg0 (V0 : Valuation τ sig (Elt Ideal)) : val5 V0 (Proc.devRef .tc main_arg0) = aX V0 :=
  (after_keep _ 10 stepOps4_ok main_arg0 (by decide +kernel) (val4 V0)).trans (val4_main_arg0 V0)
theorem val5_main_arg1 (V0 : Valuation τ sig (Elt Ideal)) : val5 V0 (Proc.devRef .tc main_arg1) = aA V0 :=
  (after_keep _ 10 stepOps4_ok main_arg1 (by decide +kernel) (val4 V0)).trans (val4_main_arg1 V0)
theorem val5_main_arg2 (V0 : Valuation τ sig (Elt Ideal)) : val5 V0 (Proc.devRef .tc main_arg2) = aB V0 :=
  (after_keep _ 10 stepOps4_ok main_arg2 (by decide +kernel) (val4 V0)).trans (val4_main_arg2 V0)
theorem val5_main_arg3 (V0 : Valuation τ sig (Elt Ideal)) : val5 V0 (Proc.devRef .tc main_arg3) = aC V0 :=
  (after_keep _ 10 stepOps4_ok main_arg3 (by decide +kernel) (val4 V0)).trans (val4_main_arg3 V0)
theorem val5_main_v3 (V0 : Valuation τ sig (Elt Ideal)) : val5 V0 (Proc.devRef .tc main_v3) = decay (aA V0) :=
  (after_keep _ 10 stepOps4_ok main_v3 (by decide +kernel) (val4 V0)).trans (val4_main_v3 V0)
theorem val5_h (V0 : Valuation τ sig (Elt Ideal)) : val5 V0 (Proc.devRef .tc main_v95) = hI (aX V0) (aA V0) (aB V0) 4 := by
  refine ((step4_val (val4 V0)).1).trans ?_
  rw [val4_main_arg0 V0, val4_main_v3 V0, val4_main_arg2 V0, val4_h V0]
  exact (hI_at (aX V0) (aA V0) (aB V0) 3 4 (by decide) rfl).symm
theorem val5_y (V0 : Valuation τ sig (Elt Ideal)) : val5 V0 (Proc.devRef .tc main_v103) = yJ (aX V0) (aA V0) (aB V0) (aC V0) 5 := by
  refine ((step4_val (val4 V0)).2).trans ?_
  rw [val4_main_arg0 V0, val4_main_v3 V0, val4_main_arg2 V0, val4_main_arg3 V0, val4_h V0, val4_y V0]
  rw [← hI_at (aX V0) (aA V0) (aB V0) 3 4 (by decide) rfl]
  exact (yJ_at (aX V0) (aA V0) (aB V0) (aC V0) 4 5 (by decide) rfl).symm
/-- The contents after step 5. -/
def val6 (V0 : Valuation τ sig (Elt Ideal)) : Valuation τ sig (Elt Ideal) := after (stepOps5 (F := Ideal)) (val5 V0)
theorem val6_main_arg0 (V0 : Valuation τ sig (Elt Ideal)) : val6 V0 (Proc.devRef .tc main_arg0) = aX V0 :=
  (after_keep _ 10 stepOps5_ok main_arg0 (by decide +kernel) (val5 V0)).trans (val5_main_arg0 V0)
theorem val6_main_arg1 (V0 : Valuation τ sig (Elt Ideal)) : val6 V0 (Proc.devRef .tc main_arg1) = aA V0 :=
  (after_keep _ 10 stepOps5_ok main_arg1 (by decide +kernel) (val5 V0)).trans (val5_main_arg1 V0)
theorem val6_main_arg2 (V0 : Valuation τ sig (Elt Ideal)) : val6 V0 (Proc.devRef .tc main_arg2) = aB V0 :=
  (after_keep _ 10 stepOps5_ok main_arg2 (by decide +kernel) (val5 V0)).trans (val5_main_arg2 V0)
theorem val6_main_arg3 (V0 : Valuation τ sig (Elt Ideal)) : val6 V0 (Proc.devRef .tc main_arg3) = aC V0 :=
  (after_keep _ 10 stepOps5_ok main_arg3 (by decide +kernel) (val5 V0)).trans (val5_main_arg3 V0)
theorem val6_main_v3 (V0 : Valuation τ sig (Elt Ideal)) : val6 V0 (Proc.devRef .tc main_v3) = decay (aA V0) :=
  (after_keep _ 10 stepOps5_ok main_v3 (by decide +kernel) (val5 V0)).trans (val5_main_v3 V0)
theorem val6_h (V0 : Valuation τ sig (Elt Ideal)) : val6 V0 (Proc.devRef .tc main_v115) = hI (aX V0) (aA V0) (aB V0) 5 := by
  refine ((step5_val (val5 V0)).1).trans ?_
  rw [val5_main_arg0 V0, val5_main_v3 V0, val5_main_arg2 V0, val5_h V0]
  exact (hI_at (aX V0) (aA V0) (aB V0) 4 5 (by decide) rfl).symm
theorem val6_y (V0 : Valuation τ sig (Elt Ideal)) : val6 V0 (Proc.devRef .tc main_v123) = yJ (aX V0) (aA V0) (aB V0) (aC V0) 6 := by
  refine ((step5_val (val5 V0)).2).trans ?_
  rw [val5_main_arg0 V0, val5_main_v3 V0, val5_main_arg2 V0, val5_main_arg3 V0, val5_h V0, val5_y V0]
  rw [← hI_at (aX V0) (aA V0) (aB V0) 4 5 (by decide) rfl]
  exact (yJ_at (aX V0) (aA V0) (aB V0) (aC V0) 5 6 (by decide) rfl).symm
/-- The contents after step 6. -/
def val7 (V0 : Valuation τ sig (Elt Ideal)) : Valuation τ sig (Elt Ideal) := after (stepOps6 (F := Ideal)) (val6 V0)
theorem val7_main_arg0 (V0 : Valuation τ sig (Elt Ideal)) : val7 V0 (Proc.devRef .tc main_arg0) = aX V0 :=
  (after_keep _ 10 stepOps6_ok main_arg0 (by decide +kernel) (val6 V0)).trans (val6_main_arg0 V0)
theorem val7_main_arg1 (V0 : Valuation τ sig (Elt Ideal)) : val7 V0 (Proc.devRef .tc main_arg1) = aA V0 :=
  (after_keep _ 10 stepOps6_ok main_arg1 (by decide +kernel) (val6 V0)).trans (val6_main_arg1 V0)
theorem val7_main_arg2 (V0 : Valuation τ sig (Elt Ideal)) : val7 V0 (Proc.devRef .tc main_arg2) = aB V0 :=
  (after_keep _ 10 stepOps6_ok main_arg2 (by decide +kernel) (val6 V0)).trans (val6_main_arg2 V0)
theorem val7_main_arg3 (V0 : Valuation τ sig (Elt Ideal)) : val7 V0 (Proc.devRef .tc main_arg3) = aC V0 :=
  (after_keep _ 10 stepOps6_ok main_arg3 (by decide +kernel) (val6 V0)).trans (val6_main_arg3 V0)
theorem val7_main_v3 (V0 : Valuation τ sig (Elt Ideal)) : val7 V0 (Proc.devRef .tc main_v3) = decay (aA V0) :=
  (after_keep _ 10 stepOps6_ok main_v3 (by decide +kernel) (val6 V0)).trans (val6_main_v3 V0)
theorem val7_h (V0 : Valuation τ sig (Elt Ideal)) : val7 V0 (Proc.devRef .tc main_v135) = hI (aX V0) (aA V0) (aB V0) 6 := by
  refine ((step6_val (val6 V0)).1).trans ?_
  rw [val6_main_arg0 V0, val6_main_v3 V0, val6_main_arg2 V0, val6_h V0]
  exact (hI_at (aX V0) (aA V0) (aB V0) 5 6 (by decide) rfl).symm
theorem val7_y (V0 : Valuation τ sig (Elt Ideal)) : val7 V0 (Proc.devRef .tc main_v143) = yJ (aX V0) (aA V0) (aB V0) (aC V0) 7 := by
  refine ((step6_val (val6 V0)).2).trans ?_
  rw [val6_main_arg0 V0, val6_main_v3 V0, val6_main_arg2 V0, val6_main_arg3 V0, val6_h V0, val6_y V0]
  rw [← hI_at (aX V0) (aA V0) (aB V0) 5 6 (by decide) rfl]
  exact (yJ_at (aX V0) (aA V0) (aB V0) (aC V0) 6 7 (by decide) rfl).symm
/-- The contents after step 7. -/
def val8 (V0 : Valuation τ sig (Elt Ideal)) : Valuation τ sig (Elt Ideal) := after (stepOps7 (F := Ideal)) (val7 V0)
theorem val8_main_arg0 (V0 : Valuation τ sig (Elt Ideal)) : val8 V0 (Proc.devRef .tc main_arg0) = aX V0 :=
  (after_keep _ 10 stepOps7_ok main_arg0 (by decide +kernel) (val7 V0)).trans (val7_main_arg0 V0)
theorem val8_main_arg1 (V0 : Valuation τ sig (Elt Ideal)) : val8 V0 (Proc.devRef .tc main_arg1) = aA V0 :=
  (after_keep _ 10 stepOps7_ok main_arg1 (by decide +kernel) (val7 V0)).trans (val7_main_arg1 V0)
theorem val8_main_arg2 (V0 : Valuation τ sig (Elt Ideal)) : val8 V0 (Proc.devRef .tc main_arg2) = aB V0 :=
  (after_keep _ 10 stepOps7_ok main_arg2 (by decide +kernel) (val7 V0)).trans (val7_main_arg2 V0)
theorem val8_main_arg3 (V0 : Valuation τ sig (Elt Ideal)) : val8 V0 (Proc.devRef .tc main_arg3) = aC V0 :=
  (after_keep _ 10 stepOps7_ok main_arg3 (by decide +kernel) (val7 V0)).trans (val7_main_arg3 V0)
theorem val8_main_v3 (V0 : Valuation τ sig (Elt Ideal)) : val8 V0 (Proc.devRef .tc main_v3) = decay (aA V0) :=
  (after_keep _ 10 stepOps7_ok main_v3 (by decide +kernel) (val7 V0)).trans (val7_main_v3 V0)
theorem val8_h (V0 : Valuation τ sig (Elt Ideal)) : val8 V0 (Proc.devRef .tc main_v155) = hI (aX V0) (aA V0) (aB V0) 7 := by
  refine ((step7_val (val7 V0)).1).trans ?_
  rw [val7_main_arg0 V0, val7_main_v3 V0, val7_main_arg2 V0, val7_h V0]
  exact (hI_at (aX V0) (aA V0) (aB V0) 6 7 (by decide) rfl).symm
theorem val8_y (V0 : Valuation τ sig (Elt Ideal)) : val8 V0 (Proc.devRef .tc main_v163) = yJ (aX V0) (aA V0) (aB V0) (aC V0) 8 := by
  refine ((step7_val (val7 V0)).2).trans ?_
  rw [val7_main_arg0 V0, val7_main_v3 V0, val7_main_arg2 V0, val7_main_arg3 V0, val7_h V0, val7_y V0]
  rw [← hI_at (aX V0) (aA V0) (aB V0) 6 7 (by decide) rfl]
  exact (yJ_at (aX V0) (aA V0) (aB V0) (aC V0) 7 8 (by decide) rfl).symm
/-- The contents after step 8. -/
def val9 (V0 : Valuation τ sig (Elt Ideal)) : Valuation τ sig (Elt Ideal) := after (stepOps8 (F := Ideal)) (val8 V0)
theorem val9_main_arg0 (V0 : Valuation τ sig (Elt Ideal)) : val9 V0 (Proc.devRef .tc main_arg0) = aX V0 :=
  (after_keep _ 10 stepOps8_ok main_arg0 (by decide +kernel) (val8 V0)).trans (val8_main_arg0 V0)
theorem val9_main_arg1 (V0 : Valuation τ sig (Elt Ideal)) : val9 V0 (Proc.devRef .tc main_arg1) = aA V0 :=
  (after_keep _ 10 stepOps8_ok main_arg1 (by decide +kernel) (val8 V0)).trans (val8_main_arg1 V0)
theorem val9_main_arg2 (V0 : Valuation τ sig (Elt Ideal)) : val9 V0 (Proc.devRef .tc main_arg2) = aB V0 :=
  (after_keep _ 10 stepOps8_ok main_arg2 (by decide +kernel) (val8 V0)).trans (val8_main_arg2 V0)
theorem val9_main_arg3 (V0 : Valuation τ sig (Elt Ideal)) : val9 V0 (Proc.devRef .tc main_arg3) = aC V0 :=
  (after_keep _ 10 stepOps8_ok main_arg3 (by decide +kernel) (val8 V0)).trans (val8_main_arg3 V0)
theorem val9_main_v3 (V0 : Valuation τ sig (Elt Ideal)) : val9 V0 (Proc.devRef .tc main_v3) = decay (aA V0) :=
  (after_keep _ 10 stepOps8_ok main_v3 (by decide +kernel) (val8 V0)).trans (val8_main_v3 V0)
theorem val9_h (V0 : Valuation τ sig (Elt Ideal)) : val9 V0 (Proc.devRef .tc main_v175) = hI (aX V0) (aA V0) (aB V0) 8 := by
  refine ((step8_val (val8 V0)).1).trans ?_
  rw [val8_main_arg0 V0, val8_main_v3 V0, val8_main_arg2 V0, val8_h V0]
  exact (hI_at (aX V0) (aA V0) (aB V0) 7 8 (by decide) rfl).symm
theorem val9_y (V0 : Valuation τ sig (Elt Ideal)) : val9 V0 (Proc.devRef .tc main_v183) = yJ (aX V0) (aA V0) (aB V0) (aC V0) 9 := by
  refine ((step8_val (val8 V0)).2).trans ?_
  rw [val8_main_arg0 V0, val8_main_v3 V0, val8_main_arg2 V0, val8_main_arg3 V0, val8_h V0, val8_y V0]
  rw [← hI_at (aX V0) (aA V0) (aB V0) 7 8 (by decide) rfl]
  exact (yJ_at (aX V0) (aA V0) (aB V0) (aC V0) 8 9 (by decide) rfl).symm
/-- The contents after step 9. -/
def val10 (V0 : Valuation τ sig (Elt Ideal)) : Valuation τ sig (Elt Ideal) := after (stepOps9 (F := Ideal)) (val9 V0)
theorem val10_main_arg0 (V0 : Valuation τ sig (Elt Ideal)) : val10 V0 (Proc.devRef .tc main_arg0) = aX V0 :=
  (after_keep _ 10 stepOps9_ok main_arg0 (by decide +kernel) (val9 V0)).trans (val9_main_arg0 V0)
theorem val10_main_arg1 (V0 : Valuation τ sig (Elt Ideal)) : val10 V0 (Proc.devRef .tc main_arg1) = aA V0 :=
  (after_keep _ 10 stepOps9_ok main_arg1 (by decide +kernel) (val9 V0)).trans (val9_main_arg1 V0)
theorem val10_main_arg2 (V0 : Valuation τ sig (Elt Ideal)) : val10 V0 (Proc.devRef .tc main_arg2) = aB V0 :=
  (after_keep _ 10 stepOps9_ok main_arg2 (by decide +kernel) (val9 V0)).trans (val9_main_arg2 V0)
theorem val10_main_arg3 (V0 : Valuation τ sig (Elt Ideal)) : val10 V0 (Proc.devRef .tc main_arg3) = aC V0 :=
  (after_keep _ 10 stepOps9_ok main_arg3 (by decide +kernel) (val9 V0)).trans (val9_main_arg3 V0)
theorem val10_main_v3 (V0 : Valuation τ sig (Elt Ideal)) : val10 V0 (Proc.devRef .tc main_v3) = decay (aA V0) :=
  (after_keep _ 10 stepOps9_ok main_v3 (by decide +kernel) (val9 V0)).trans (val9_main_v3 V0)
theorem val10_h (V0 : Valuation τ sig (Elt Ideal)) : val10 V0 (Proc.devRef .tc main_v195) = hI (aX V0) (aA V0) (aB V0) 9 := by
  refine ((step9_val (val9 V0)).1).trans ?_
  rw [val9_main_arg0 V0, val9_main_v3 V0, val9_main_arg2 V0, val9_h V0]
  exact (hI_at (aX V0) (aA V0) (aB V0) 8 9 (by decide) rfl).symm
theorem val10_y (V0 : Valuation τ sig (Elt Ideal)) : val10 V0 (Proc.devRef .tc main_v203) = yJ (aX V0) (aA V0) (aB V0) (aC V0) 10 := by
  refine ((step9_val (val9 V0)).2).trans ?_
  rw [val9_main_arg0 V0, val9_main_v3 V0, val9_main_arg2 V0, val9_main_arg3 V0, val9_h V0, val9_y V0]
  rw [← hI_at (aX V0) (aA V0) (aB V0) 8 9 (by decide) rfl]
  exact (yJ_at (aX V0) (aA V0) (aB V0) (aC V0) 9 10 (by decide) rfl).symm
/-- The contents after step 10. -/
def val11 (V0 : Valuation τ sig (Elt Ideal)) : Valuation τ sig (Elt Ideal) := after (stepOps10 (F := Ideal)) (val10 V0)
theorem val11_main_arg0 (V0 : Valuation τ sig (Elt Ideal)) : val11 V0 (Proc.devRef .tc main_arg0) = aX V0 :=
  (after_keep _ 10 stepOps10_ok main_arg0 (by decide +kernel) (val10 V0)).trans (val10_main_arg0 V0)
theorem val11_main_arg1 (V0 : Valuation τ sig (Elt Ideal)) : val11 V0 (Proc.devRef .tc main_arg1) = aA V0 :=
  (after_keep _ 10 stepOps10_ok main_arg1 (by decide +kernel) (val10 V0)).trans (val10_main_arg1 V0)
theorem val11_main_arg2 (V0 : Valuation τ sig (Elt Ideal)) : val11 V0 (Proc.devRef .tc main_arg2) = aB V0 :=
  (after_keep _ 10 stepOps10_ok main_arg2 (by decide +kernel) (val10 V0)).trans (val10_main_arg2 V0)
theorem val11_main_arg3 (V0 : Valuation τ sig (Elt Ideal)) : val11 V0 (Proc.devRef .tc main_arg3) = aC V0 :=
  (after_keep _ 10 stepOps10_ok main_arg3 (by decide +kernel) (val10 V0)).trans (val10_main_arg3 V0)
theorem val11_main_v3 (V0 : Valuation τ sig (Elt Ideal)) : val11 V0 (Proc.devRef .tc main_v3) = decay (aA V0) :=
  (after_keep _ 10 stepOps10_ok main_v3 (by decide +kernel) (val10 V0)).trans (val10_main_v3 V0)
theorem val11_h (V0 : Valuation τ sig (Elt Ideal)) : val11 V0 (Proc.devRef .tc main_v215) = hI (aX V0) (aA V0) (aB V0) 10 := by
  refine ((step10_val (val10 V0)).1).trans ?_
  rw [val10_main_arg0 V0, val10_main_v3 V0, val10_main_arg2 V0, val10_h V0]
  exact (hI_at (aX V0) (aA V0) (aB V0) 9 10 (by decide) rfl).symm
theorem val11_y (V0 : Valuation τ sig (Elt Ideal)) : val11 V0 (Proc.devRef .tc main_v223) = yJ (aX V0) (aA V0) (aB V0) (aC V0) 11 := by
  refine ((step10_val (val10 V0)).2).trans ?_
  rw [val10_main_arg0 V0, val10_main_v3 V0, val10_main_arg2 V0, val10_main_arg3 V0, val10_h V0, val10_y V0]
  rw [← hI_at (aX V0) (aA V0) (aB V0) 9 10 (by decide) rfl]
  exact (yJ_at (aX V0) (aA V0) (aB V0) (aC V0) 10 11 (by decide) rfl).symm
/-- The contents after step 11. -/
def val12 (V0 : Valuation τ sig (Elt Ideal)) : Valuation τ sig (Elt Ideal) := after (stepOps11 (F := Ideal)) (val11 V0)
theorem val12_main_arg0 (V0 : Valuation τ sig (Elt Ideal)) : val12 V0 (Proc.devRef .tc main_arg0) = aX V0 :=
  (after_keep _ 10 stepOps11_ok main_arg0 (by decide +kernel) (val11 V0)).trans (val11_main_arg0 V0)
theorem val12_main_arg1 (V0 : Valuation τ sig (Elt Ideal)) : val12 V0 (Proc.devRef .tc main_arg1) = aA V0 :=
  (after_keep _ 10 stepOps11_ok main_arg1 (by decide +kernel) (val11 V0)).trans (val11_main_arg1 V0)
theorem val12_main_arg2 (V0 : Valuation τ sig (Elt Ideal)) : val12 V0 (Proc.devRef .tc main_arg2) = aB V0 :=
  (after_keep _ 10 stepOps11_ok main_arg2 (by decide +kernel) (val11 V0)).trans (val11_main_arg2 V0)
theorem val12_main_arg3 (V0 : Valuation τ sig (Elt Ideal)) : val12 V0 (Proc.devRef .tc main_arg3) = aC V0 :=
  (after_keep _ 10 stepOps11_ok main_arg3 (by decide +kernel) (val11 V0)).trans (val11_main_arg3 V0)
theorem val12_main_v3 (V0 : Valuation τ sig (Elt Ideal)) : val12 V0 (Proc.devRef .tc main_v3) = decay (aA V0) :=
  (after_keep _ 10 stepOps11_ok main_v3 (by decide +kernel) (val11 V0)).trans (val11_main_v3 V0)
theorem val12_h (V0 : Valuation τ sig (Elt Ideal)) : val12 V0 (Proc.devRef .tc main_v235) = hI (aX V0) (aA V0) (aB V0) 11 := by
  refine ((step11_val (val11 V0)).1).trans ?_
  rw [val11_main_arg0 V0, val11_main_v3 V0, val11_main_arg2 V0, val11_h V0]
  exact (hI_at (aX V0) (aA V0) (aB V0) 10 11 (by decide) rfl).symm
theorem val12_y (V0 : Valuation τ sig (Elt Ideal)) : val12 V0 (Proc.devRef .tc main_v243) = yJ (aX V0) (aA V0) (aB V0) (aC V0) 12 := by
  refine ((step11_val (val11 V0)).2).trans ?_
  rw [val11_main_arg0 V0, val11_main_v3 V0, val11_main_arg2 V0, val11_main_arg3 V0, val11_h V0, val11_y V0]
  rw [← hI_at (aX V0) (aA V0) (aB V0) 10 11 (by decide) rfl]
  exact (yJ_at (aX V0) (aA V0) (aB V0) (aC V0) 11 12 (by decide) rfl).symm
/-- The contents after step 12. -/
def val13 (V0 : Valuation τ sig (Elt Ideal)) : Valuation τ sig (Elt Ideal) := after (stepOps12 (F := Ideal)) (val12 V0)
theorem val13_main_arg0 (V0 : Valuation τ sig (Elt Ideal)) : val13 V0 (Proc.devRef .tc main_arg0) = aX V0 :=
  (after_keep _ 10 stepOps12_ok main_arg0 (by decide +kernel) (val12 V0)).trans (val12_main_arg0 V0)
theorem val13_main_arg1 (V0 : Valuation τ sig (Elt Ideal)) : val13 V0 (Proc.devRef .tc main_arg1) = aA V0 :=
  (after_keep _ 10 stepOps12_ok main_arg1 (by decide +kernel) (val12 V0)).trans (val12_main_arg1 V0)
theorem val13_main_arg2 (V0 : Valuation τ sig (Elt Ideal)) : val13 V0 (Proc.devRef .tc main_arg2) = aB V0 :=
  (after_keep _ 10 stepOps12_ok main_arg2 (by decide +kernel) (val12 V0)).trans (val12_main_arg2 V0)
theorem val13_main_arg3 (V0 : Valuation τ sig (Elt Ideal)) : val13 V0 (Proc.devRef .tc main_arg3) = aC V0 :=
  (after_keep _ 10 stepOps12_ok main_arg3 (by decide +kernel) (val12 V0)).trans (val12_main_arg3 V0)
theorem val13_main_v3 (V0 : Valuation τ sig (Elt Ideal)) : val13 V0 (Proc.devRef .tc main_v3) = decay (aA V0) :=
  (after_keep _ 10 stepOps12_ok main_v3 (by decide +kernel) (val12 V0)).trans (val12_main_v3 V0)
theorem val13_h (V0 : Valuation τ sig (Elt Ideal)) : val13 V0 (Proc.devRef .tc main_v255) = hI (aX V0) (aA V0) (aB V0) 12 := by
  refine ((step12_val (val12 V0)).1).trans ?_
  rw [val12_main_arg0 V0, val12_main_v3 V0, val12_main_arg2 V0, val12_h V0]
  exact (hI_at (aX V0) (aA V0) (aB V0) 11 12 (by decide) rfl).symm
theorem val13_y (V0 : Valuation τ sig (Elt Ideal)) : val13 V0 (Proc.devRef .tc main_v263) = yJ (aX V0) (aA V0) (aB V0) (aC V0) 13 := by
  refine ((step12_val (val12 V0)).2).trans ?_
  rw [val12_main_arg0 V0, val12_main_v3 V0, val12_main_arg2 V0, val12_main_arg3 V0, val12_h V0, val12_y V0]
  rw [← hI_at (aX V0) (aA V0) (aB V0) 11 12 (by decide) rfl]
  exact (yJ_at (aX V0) (aA V0) (aB V0) (aC V0) 12 13 (by decide) rfl).symm
/-- The contents after step 13. -/
def val14 (V0 : Valuation τ sig (Elt Ideal)) : Valuation τ sig (Elt Ideal) := after (stepOps13 (F := Ideal)) (val13 V0)
theorem val14_main_arg0 (V0 : Valuation τ sig (Elt Ideal)) : val14 V0 (Proc.devRef .tc main_arg0) = aX V0 :=
  (after_keep _ 10 stepOps13_ok main_arg0 (by decide +kernel) (val13 V0)).trans (val13_main_arg0 V0)
theorem val14_main_arg1 (V0 : Valuation τ sig (Elt Ideal)) : val14 V0 (Proc.devRef .tc main_arg1) = aA V0 :=
  (after_keep _ 10 stepOps13_ok main_arg1 (by decide +kernel) (val13 V0)).trans (val13_main_arg1 V0)
theorem val14_main_arg2 (V0 : Valuation τ sig (Elt Ideal)) : val14 V0 (Proc.devRef .tc main_arg2) = aB V0 :=
  (after_keep _ 10 stepOps13_ok main_arg2 (by decide +kernel) (val13 V0)).trans (val13_main_arg2 V0)
theorem val14_main_arg3 (V0 : Valuation τ sig (Elt Ideal)) : val14 V0 (Proc.devRef .tc main_arg3) = aC V0 :=
  (after_keep _ 10 stepOps13_ok main_arg3 (by decide +kernel) (val13 V0)).trans (val13_main_arg3 V0)
theorem val14_main_v3 (V0 : Valuation τ sig (Elt Ideal)) : val14 V0 (Proc.devRef .tc main_v3) = decay (aA V0) :=
  (after_keep _ 10 stepOps13_ok main_v3 (by decide +kernel) (val13 V0)).trans (val13_main_v3 V0)
theorem val14_h (V0 : Valuation τ sig (Elt Ideal)) : val14 V0 (Proc.devRef .tc main_v275) = hI (aX V0) (aA V0) (aB V0) 13 := by
  refine ((step13_val (val13 V0)).1).trans ?_
  rw [val13_main_arg0 V0, val13_main_v3 V0, val13_main_arg2 V0, val13_h V0]
  exact (hI_at (aX V0) (aA V0) (aB V0) 12 13 (by decide) rfl).symm
theorem val14_y (V0 : Valuation τ sig (Elt Ideal)) : val14 V0 (Proc.devRef .tc main_v283) = yJ (aX V0) (aA V0) (aB V0) (aC V0) 14 := by
  refine ((step13_val (val13 V0)).2).trans ?_
  rw [val13_main_arg0 V0, val13_main_v3 V0, val13_main_arg2 V0, val13_main_arg3 V0, val13_h V0, val13_y V0]
  rw [← hI_at (aX V0) (aA V0) (aB V0) 12 13 (by decide) rfl]
  exact (yJ_at (aX V0) (aA V0) (aB V0) (aC V0) 13 14 (by decide) rfl).symm
/-- The contents after step 14. -/
def val15 (V0 : Valuation τ sig (Elt Ideal)) : Valuation τ sig (Elt Ideal) := after (stepOps14 (F := Ideal)) (val14 V0)
theorem val15_main_arg0 (V0 : Valuation τ sig (Elt Ideal)) : val15 V0 (Proc.devRef .tc main_arg0) = aX V0 :=
  (after_keep _ 10 stepOps14_ok main_arg0 (by decide +kernel) (val14 V0)).trans (val14_main_arg0 V0)
theorem val15_main_arg1 (V0 : Valuation τ sig (Elt Ideal)) : val15 V0 (Proc.devRef .tc main_arg1) = aA V0 :=
  (after_keep _ 10 stepOps14_ok main_arg1 (by decide +kernel) (val14 V0)).trans (val14_main_arg1 V0)
theorem val15_main_arg2 (V0 : Valuation τ sig (Elt Ideal)) : val15 V0 (Proc.devRef .tc main_arg2) = aB V0 :=
  (after_keep _ 10 stepOps14_ok main_arg2 (by decide +kernel) (val14 V0)).trans (val14_main_arg2 V0)
theorem val15_main_arg3 (V0 : Valuation τ sig (Elt Ideal)) : val15 V0 (Proc.devRef .tc main_arg3) = aC V0 :=
  (after_keep _ 10 stepOps14_ok main_arg3 (by decide +kernel) (val14 V0)).trans (val14_main_arg3 V0)
theorem val15_main_v3 (V0 : Valuation τ sig (Elt Ideal)) : val15 V0 (Proc.devRef .tc main_v3) = decay (aA V0) :=
  (after_keep _ 10 stepOps14_ok main_v3 (by decide +kernel) (val14 V0)).trans (val14_main_v3 V0)
theorem val15_h (V0 : Valuation τ sig (Elt Ideal)) : val15 V0 (Proc.devRef .tc main_v295) = hI (aX V0) (aA V0) (aB V0) 14 := by
  refine ((step14_val (val14 V0)).1).trans ?_
  rw [val14_main_arg0 V0, val14_main_v3 V0, val14_main_arg2 V0, val14_h V0]
  exact (hI_at (aX V0) (aA V0) (aB V0) 13 14 (by decide) rfl).symm
theorem val15_y (V0 : Valuation τ sig (Elt Ideal)) : val15 V0 (Proc.devRef .tc main_v303) = yJ (aX V0) (aA V0) (aB V0) (aC V0) 15 := by
  refine ((step14_val (val14 V0)).2).trans ?_
  rw [val14_main_arg0 V0, val14_main_v3 V0, val14_main_arg2 V0, val14_main_arg3 V0, val14_h V0, val14_y V0]
  rw [← hI_at (aX V0) (aA V0) (aB V0) 13 14 (by decide) rfl]
  exact (yJ_at (aX V0) (aA V0) (aB V0) (aC V0) 14 15 (by decide) rfl).symm
/-- The contents after step 15. -/
def val16 (V0 : Valuation τ sig (Elt Ideal)) : Valuation τ sig (Elt Ideal) := after (stepOps15 (F := Ideal)) (val15 V0)
theorem val16_main_arg0 (V0 : Valuation τ sig (Elt Ideal)) : val16 V0 (Proc.devRef .tc main_arg0) = aX V0 :=
  (after_keep _ 10 stepOps15_ok main_arg0 (by decide +kernel) (val15 V0)).trans (val15_main_arg0 V0)
theorem val16_main_arg1 (V0 : Valuation τ sig (Elt Ideal)) : val16 V0 (Proc.devRef .tc main_arg1) = aA V0 :=
  (after_keep _ 10 stepOps15_ok main_arg1 (by decide +kernel) (val15 V0)).trans (val15_main_arg1 V0)
theorem val16_main_arg2 (V0 : Valuation τ sig (Elt Ideal)) : val16 V0 (Proc.devRef .tc main_arg2) = aB V0 :=
  (after_keep _ 10 stepOps15_ok main_arg2 (by decide +kernel) (val15 V0)).trans (val15_main_arg2 V0)
theorem val16_main_arg3 (V0 : Valuation τ sig (Elt Ideal)) : val16 V0 (Proc.devRef .tc main_arg3) = aC V0 :=
  (after_keep _ 10 stepOps15_ok main_arg3 (by decide +kernel) (val15 V0)).trans (val15_main_arg3 V0)
theorem val16_main_v3 (V0 : Valuation τ sig (Elt Ideal)) : val16 V0 (Proc.devRef .tc main_v3) = decay (aA V0) :=
  (after_keep _ 10 stepOps15_ok main_v3 (by decide +kernel) (val15 V0)).trans (val15_main_v3 V0)
theorem val16_h (V0 : Valuation τ sig (Elt Ideal)) : val16 V0 (Proc.devRef .tc main_v315) = hI (aX V0) (aA V0) (aB V0) 15 := by
  refine ((step15_val (val15 V0)).1).trans ?_
  rw [val15_main_arg0 V0, val15_main_v3 V0, val15_main_arg2 V0, val15_h V0]
  exact (hI_at (aX V0) (aA V0) (aB V0) 14 15 (by decide) rfl).symm
theorem val16_y (V0 : Valuation τ sig (Elt Ideal)) : val16 V0 (Proc.devRef .tc main_v323) = yJ (aX V0) (aA V0) (aB V0) (aC V0) 16 := by
  refine ((step15_val (val15 V0)).2).trans ?_
  rw [val15_main_arg0 V0, val15_main_v3 V0, val15_main_arg2 V0, val15_main_arg3 V0, val15_h V0, val15_y V0]
  rw [← hI_at (aX V0) (aA V0) (aB V0) 14 15 (by decide) rfl]
  exact (yJ_at (aX V0) (aA V0) (aB V0) (aC V0) 15 16 (by decide) rfl).symm
/-- The contents after step 16. -/
def val17 (V0 : Valuation τ sig (Elt Ideal)) : Valuation τ sig (Elt Ideal) := after (stepOps16 (F := Ideal)) (val16 V0)
theorem val17_main_arg0 (V0 : Valuation τ sig (Elt Ideal)) : val17 V0 (Proc.devRef .tc main_arg0) = aX V0 :=
  (after_keep _ 10 stepOps16_ok main_arg0 (by decide +kernel) (val16 V0)).trans (val16_main_arg0 V0)
theorem val17_main_arg1 (V0 : Valuation τ sig (Elt Ideal)) : val17 V0 (Proc.devRef .tc main_arg1) = aA V0 :=
  (after_keep _ 10 stepOps16_ok main_arg1 (by decide +kernel) (val16 V0)).trans (val16_main_arg1 V0)
theorem val17_main_arg2 (V0 : Valuation τ sig (Elt Ideal)) : val17 V0 (Proc.devRef .tc main_arg2) = aB V0 :=
  (after_keep _ 10 stepOps16_ok main_arg2 (by decide +kernel) (val16 V0)).trans (val16_main_arg2 V0)
theorem val17_main_arg3 (V0 : Valuation τ sig (Elt Ideal)) : val17 V0 (Proc.devRef .tc main_arg3) = aC V0 :=
  (after_keep _ 10 stepOps16_ok main_arg3 (by decide +kernel) (val16 V0)).trans (val16_main_arg3 V0)
theorem val17_main_v3 (V0 : Valuation τ sig (Elt Ideal)) : val17 V0 (Proc.devRef .tc main_v3) = decay (aA V0) :=
  (after_keep _ 10 stepOps16_ok main_v3 (by decide +kernel) (val16 V0)).trans (val16_main_v3 V0)
theorem val17_h (V0 : Valuation τ sig (Elt Ideal)) : val17 V0 (Proc.devRef .tc main_v335) = hI (aX V0) (aA V0) (aB V0) 16 := by
  refine ((step16_val (val16 V0)).1).trans ?_
  rw [val16_main_arg0 V0, val16_main_v3 V0, val16_main_arg2 V0, val16_h V0]
  exact (hI_at (aX V0) (aA V0) (aB V0) 15 16 (by decide) rfl).symm
theorem val17_y (V0 : Valuation τ sig (Elt Ideal)) : val17 V0 (Proc.devRef .tc main_v343) = yJ (aX V0) (aA V0) (aB V0) (aC V0) 17 := by
  refine ((step16_val (val16 V0)).2).trans ?_
  rw [val16_main_arg0 V0, val16_main_v3 V0, val16_main_arg2 V0, val16_main_arg3 V0, val16_h V0, val16_y V0]
  rw [← hI_at (aX V0) (aA V0) (aB V0) 15 16 (by decide) rfl]
  exact (yJ_at (aX V0) (aA V0) (aB V0) (aC V0) 16 17 (by decide) rfl).symm
/-- The contents after step 17. -/
def val18 (V0 : Valuation τ sig (Elt Ideal)) : Valuation τ sig (Elt Ideal) := after (stepOps17 (F := Ideal)) (val17 V0)
theorem val18_main_arg0 (V0 : Valuation τ sig (Elt Ideal)) : val18 V0 (Proc.devRef .tc main_arg0) = aX V0 :=
  (after_keep _ 10 stepOps17_ok main_arg0 (by decide +kernel) (val17 V0)).trans (val17_main_arg0 V0)
theorem val18_main_arg1 (V0 : Valuation τ sig (Elt Ideal)) : val18 V0 (Proc.devRef .tc main_arg1) = aA V0 :=
  (after_keep _ 10 stepOps17_ok main_arg1 (by decide +kernel) (val17 V0)).trans (val17_main_arg1 V0)
theorem val18_main_arg2 (V0 : Valuation τ sig (Elt Ideal)) : val18 V0 (Proc.devRef .tc main_arg2) = aB V0 :=
  (after_keep _ 10 stepOps17_ok main_arg2 (by decide +kernel) (val17 V0)).trans (val17_main_arg2 V0)
theorem val18_main_arg3 (V0 : Valuation τ sig (Elt Ideal)) : val18 V0 (Proc.devRef .tc main_arg3) = aC V0 :=
  (after_keep _ 10 stepOps17_ok main_arg3 (by decide +kernel) (val17 V0)).trans (val17_main_arg3 V0)
theorem val18_main_v3 (V0 : Valuation τ sig (Elt Ideal)) : val18 V0 (Proc.devRef .tc main_v3) = decay (aA V0) :=
  (after_keep _ 10 stepOps17_ok main_v3 (by decide +kernel) (val17 V0)).trans (val17_main_v3 V0)
theorem val18_h (V0 : Valuation τ sig (Elt Ideal)) : val18 V0 (Proc.devRef .tc main_v355) = hI (aX V0) (aA V0) (aB V0) 17 := by
  refine ((step17_val (val17 V0)).1).trans ?_
  rw [val17_main_arg0 V0, val17_main_v3 V0, val17_main_arg2 V0, val17_h V0]
  exact (hI_at (aX V0) (aA V0) (aB V0) 16 17 (by decide) rfl).symm
theorem val18_y (V0 : Valuation τ sig (Elt Ideal)) : val18 V0 (Proc.devRef .tc main_v363) = yJ (aX V0) (aA V0) (aB V0) (aC V0) 18 := by
  refine ((step17_val (val17 V0)).2).trans ?_
  rw [val17_main_arg0 V0, val17_main_v3 V0, val17_main_arg2 V0, val17_main_arg3 V0, val17_h V0, val17_y V0]
  rw [← hI_at (aX V0) (aA V0) (aB V0) 16 17 (by decide) rfl]
  exact (yJ_at (aX V0) (aA V0) (aB V0) (aC V0) 17 18 (by decide) rfl).symm
/-- The contents after step 18. -/
def val19 (V0 : Valuation τ sig (Elt Ideal)) : Valuation τ sig (Elt Ideal) := after (stepOps18 (F := Ideal)) (val18 V0)
theorem val19_main_arg0 (V0 : Valuation τ sig (Elt Ideal)) : val19 V0 (Proc.devRef .tc main_arg0) = aX V0 :=
  (after_keep _ 10 stepOps18_ok main_arg0 (by decide +kernel) (val18 V0)).trans (val18_main_arg0 V0)
theorem val19_main_arg1 (V0 : Valuation τ sig (Elt Ideal)) : val19 V0 (Proc.devRef .tc main_arg1) = aA V0 :=
  (after_keep _ 10 stepOps18_ok main_arg1 (by decide +kernel) (val18 V0)).trans (val18_main_arg1 V0)
theorem val19_main_arg2 (V0 : Valuation τ sig (Elt Ideal)) : val19 V0 (Proc.devRef .tc main_arg2) = aB V0 :=
  (after_keep _ 10 stepOps18_ok main_arg2 (by decide +kernel) (val18 V0)).trans (val18_main_arg2 V0)
theorem val19_main_arg3 (V0 : Valuation τ sig (Elt Ideal)) : val19 V0 (Proc.devRef .tc main_arg3) = aC V0 :=
  (after_keep _ 10 stepOps18_ok main_arg3 (by decide +kernel) (val18 V0)).trans (val18_main_arg3 V0)
theorem val19_main_v3 (V0 : Valuation τ sig (Elt Ideal)) : val19 V0 (Proc.devRef .tc main_v3) = decay (aA V0) :=
  (after_keep _ 10 stepOps18_ok main_v3 (by decide +kernel) (val18 V0)).trans (val18_main_v3 V0)
theorem val19_h (V0 : Valuation τ sig (Elt Ideal)) : val19 V0 (Proc.devRef .tc main_v375) = hI (aX V0) (aA V0) (aB V0) 18 := by
  refine ((step18_val (val18 V0)).1).trans ?_
  rw [val18_main_arg0 V0, val18_main_v3 V0, val18_main_arg2 V0, val18_h V0]
  exact (hI_at (aX V0) (aA V0) (aB V0) 17 18 (by decide) rfl).symm
theorem val19_y (V0 : Valuation τ sig (Elt Ideal)) : val19 V0 (Proc.devRef .tc main_v383) = yJ (aX V0) (aA V0) (aB V0) (aC V0) 19 := by
  refine ((step18_val (val18 V0)).2).trans ?_
  rw [val18_main_arg0 V0, val18_main_v3 V0, val18_main_arg2 V0, val18_main_arg3 V0, val18_h V0, val18_y V0]
  rw [← hI_at (aX V0) (aA V0) (aB V0) 17 18 (by decide) rfl]
  exact (yJ_at (aX V0) (aA V0) (aB V0) (aC V0) 18 19 (by decide) rfl).symm
/-- The contents after step 19. -/
def val20 (V0 : Valuation τ sig (Elt Ideal)) : Valuation τ sig (Elt Ideal) := after (stepOps19 (F := Ideal)) (val19 V0)
theorem val20_main_arg0 (V0 : Valuation τ sig (Elt Ideal)) : val20 V0 (Proc.devRef .tc main_arg0) = aX V0 :=
  (after_keep _ 10 stepOps19_ok main_arg0 (by decide +kernel) (val19 V0)).trans (val19_main_arg0 V0)
theorem val20_main_arg1 (V0 : Valuation τ sig (Elt Ideal)) : val20 V0 (Proc.devRef .tc main_arg1) = aA V0 :=
  (after_keep _ 10 stepOps19_ok main_arg1 (by decide +kernel) (val19 V0)).trans (val19_main_arg1 V0)
theorem val20_main_arg2 (V0 : Valuation τ sig (Elt Ideal)) : val20 V0 (Proc.devRef .tc main_arg2) = aB V0 :=
  (after_keep _ 10 stepOps19_ok main_arg2 (by decide +kernel) (val19 V0)).trans (val19_main_arg2 V0)
theorem val20_main_arg3 (V0 : Valuation τ sig (Elt Ideal)) : val20 V0 (Proc.devRef .tc main_arg3) = aC V0 :=
  (after_keep _ 10 stepOps19_ok main_arg3 (by decide +kernel) (val19 V0)).trans (val19_main_arg3 V0)
theorem val20_main_v3 (V0 : Valuation τ sig (Elt Ideal)) : val20 V0 (Proc.devRef .tc main_v3) = decay (aA V0) :=
  (after_keep _ 10 stepOps19_ok main_v3 (by decide +kernel) (val19 V0)).trans (val19_main_v3 V0)
theorem val20_h (V0 : Valuation τ sig (Elt Ideal)) : val20 V0 (Proc.devRef .tc main_v395) = hI (aX V0) (aA V0) (aB V0) 19 := by
  refine ((step19_val (val19 V0)).1).trans ?_
  rw [val19_main_arg0 V0, val19_main_v3 V0, val19_main_arg2 V0, val19_h V0]
  exact (hI_at (aX V0) (aA V0) (aB V0) 18 19 (by decide) rfl).symm
theorem val20_y (V0 : Valuation τ sig (Elt Ideal)) : val20 V0 (Proc.devRef .tc main_v403) = yJ (aX V0) (aA V0) (aB V0) (aC V0) 20 := by
  refine ((step19_val (val19 V0)).2).trans ?_
  rw [val19_main_arg0 V0, val19_main_v3 V0, val19_main_arg2 V0, val19_main_arg3 V0, val19_h V0, val19_y V0]
  rw [← hI_at (aX V0) (aA V0) (aB V0) 18 19 (by decide) rfl]
  exact (yJ_at (aX V0) (aA V0) (aB V0) (aC V0) 19 20 (by decide) rfl).symm
/-- The contents after step 20. -/
def val21 (V0 : Valuation τ sig (Elt Ideal)) : Valuation τ sig (Elt Ideal) := after (stepOps20 (F := Ideal)) (val20 V0)
theorem val21_main_arg0 (V0 : Valuation τ sig (Elt Ideal)) : val21 V0 (Proc.devRef .tc main_arg0) = aX V0 :=
  (after_keep _ 10 stepOps20_ok main_arg0 (by decide +kernel) (val20 V0)).trans (val20_main_arg0 V0)
theorem val21_main_arg1 (V0 : Valuation τ sig (Elt Ideal)) : val21 V0 (Proc.devRef .tc main_arg1) = aA V0 :=
  (after_keep _ 10 stepOps20_ok main_arg1 (by decide +kernel) (val20 V0)).trans (val20_main_arg1 V0)
theorem val21_main_arg2 (V0 : Valuation τ sig (Elt Ideal)) : val21 V0 (Proc.devRef .tc main_arg2) = aB V0 :=
  (after_keep _ 10 stepOps20_ok main_arg2 (by decide +kernel) (val20 V0)).trans (val20_main_arg2 V0)
theorem val21_main_arg3 (V0 : Valuation τ sig (Elt Ideal)) : val21 V0 (Proc.devRef .tc main_arg3) = aC V0 :=
  (after_keep _ 10 stepOps20_ok main_arg3 (by decide +kernel) (val20 V0)).trans (val20_main_arg3 V0)
theorem val21_main_v3 (V0 : Valuation τ sig (Elt Ideal)) : val21 V0 (Proc.devRef .tc main_v3) = decay (aA V0) :=
  (after_keep _ 10 stepOps20_ok main_v3 (by decide +kernel) (val20 V0)).trans (val20_main_v3 V0)
theorem val21_h (V0 : Valuation τ sig (Elt Ideal)) : val21 V0 (Proc.devRef .tc main_v415) = hI (aX V0) (aA V0) (aB V0) 20 := by
  refine ((step20_val (val20 V0)).1).trans ?_
  rw [val20_main_arg0 V0, val20_main_v3 V0, val20_main_arg2 V0, val20_h V0]
  exact (hI_at (aX V0) (aA V0) (aB V0) 19 20 (by decide) rfl).symm
theorem val21_y (V0 : Valuation τ sig (Elt Ideal)) : val21 V0 (Proc.devRef .tc main_v423) = yJ (aX V0) (aA V0) (aB V0) (aC V0) 21 := by
  refine ((step20_val (val20 V0)).2).trans ?_
  rw [val20_main_arg0 V0, val20_main_v3 V0, val20_main_arg2 V0, val20_main_arg3 V0, val20_h V0, val20_y V0]
  rw [← hI_at (aX V0) (aA V0) (aB V0) 19 20 (by decide) rfl]
  exact (yJ_at (aX V0) (aA V0) (aB V0) (aC V0) 20 21 (by decide) rfl).symm
/-- The contents after step 21. -/
def val22 (V0 : Valuation τ sig (Elt Ideal)) : Valuation τ sig (Elt Ideal) := after (stepOps21 (F := Ideal)) (val21 V0)
theorem val22_main_arg0 (V0 : Valuation τ sig (Elt Ideal)) : val22 V0 (Proc.devRef .tc main_arg0) = aX V0 :=
  (after_keep _ 10 stepOps21_ok main_arg0 (by decide +kernel) (val21 V0)).trans (val21_main_arg0 V0)
theorem val22_main_arg1 (V0 : Valuation τ sig (Elt Ideal)) : val22 V0 (Proc.devRef .tc main_arg1) = aA V0 :=
  (after_keep _ 10 stepOps21_ok main_arg1 (by decide +kernel) (val21 V0)).trans (val21_main_arg1 V0)
theorem val22_main_arg2 (V0 : Valuation τ sig (Elt Ideal)) : val22 V0 (Proc.devRef .tc main_arg2) = aB V0 :=
  (after_keep _ 10 stepOps21_ok main_arg2 (by decide +kernel) (val21 V0)).trans (val21_main_arg2 V0)
theorem val22_main_arg3 (V0 : Valuation τ sig (Elt Ideal)) : val22 V0 (Proc.devRef .tc main_arg3) = aC V0 :=
  (after_keep _ 10 stepOps21_ok main_arg3 (by decide +kernel) (val21 V0)).trans (val21_main_arg3 V0)
theorem val22_main_v3 (V0 : Valuation τ sig (Elt Ideal)) : val22 V0 (Proc.devRef .tc main_v3) = decay (aA V0) :=
  (after_keep _ 10 stepOps21_ok main_v3 (by decide +kernel) (val21 V0)).trans (val21_main_v3 V0)
theorem val22_h (V0 : Valuation τ sig (Elt Ideal)) : val22 V0 (Proc.devRef .tc main_v435) = hI (aX V0) (aA V0) (aB V0) 21 := by
  refine ((step21_val (val21 V0)).1).trans ?_
  rw [val21_main_arg0 V0, val21_main_v3 V0, val21_main_arg2 V0, val21_h V0]
  exact (hI_at (aX V0) (aA V0) (aB V0) 20 21 (by decide) rfl).symm
theorem val22_y (V0 : Valuation τ sig (Elt Ideal)) : val22 V0 (Proc.devRef .tc main_v443) = yJ (aX V0) (aA V0) (aB V0) (aC V0) 22 := by
  refine ((step21_val (val21 V0)).2).trans ?_
  rw [val21_main_arg0 V0, val21_main_v3 V0, val21_main_arg2 V0, val21_main_arg3 V0, val21_h V0, val21_y V0]
  rw [← hI_at (aX V0) (aA V0) (aB V0) 20 21 (by decide) rfl]
  exact (yJ_at (aX V0) (aA V0) (aB V0) (aC V0) 21 22 (by decide) rfl).symm
/-- The contents after step 22. -/
def val23 (V0 : Valuation τ sig (Elt Ideal)) : Valuation τ sig (Elt Ideal) := after (stepOps22 (F := Ideal)) (val22 V0)
theorem val23_main_arg0 (V0 : Valuation τ sig (Elt Ideal)) : val23 V0 (Proc.devRef .tc main_arg0) = aX V0 :=
  (after_keep _ 10 stepOps22_ok main_arg0 (by decide +kernel) (val22 V0)).trans (val22_main_arg0 V0)
theorem val23_main_arg1 (V0 : Valuation τ sig (Elt Ideal)) : val23 V0 (Proc.devRef .tc main_arg1) = aA V0 :=
  (after_keep _ 10 stepOps22_ok main_arg1 (by decide +kernel) (val22 V0)).trans (val22_main_arg1 V0)
theorem val23_main_arg2 (V0 : Valuation τ sig (Elt Ideal)) : val23 V0 (Proc.devRef .tc main_arg2) = aB V0 :=
  (after_keep _ 10 stepOps22_ok main_arg2 (by decide +kernel) (val22 V0)).trans (val22_main_arg2 V0)
theorem val23_main_arg3 (V0 : Valuation τ sig (Elt Ideal)) : val23 V0 (Proc.devRef .tc main_arg3) = aC V0 :=
  (after_keep _ 10 stepOps22_ok main_arg3 (by decide +kernel) (val22 V0)).trans (val22_main_arg3 V0)
theorem val23_main_v3 (V0 : Valuation τ sig (Elt Ideal)) : val23 V0 (Proc.devRef .tc main_v3) = decay (aA V0) :=
  (after_keep _ 10 stepOps22_ok main_v3 (by decide +kernel) (val22 V0)).trans (val22_main_v3 V0)
theorem val23_h (V0 : Valuation τ sig (Elt Ideal)) : val23 V0 (Proc.devRef .tc main_v455) = hI (aX V0) (aA V0) (aB V0) 22 := by
  refine ((step22_val (val22 V0)).1).trans ?_
  rw [val22_main_arg0 V0, val22_main_v3 V0, val22_main_arg2 V0, val22_h V0]
  exact (hI_at (aX V0) (aA V0) (aB V0) 21 22 (by decide) rfl).symm
theorem val23_y (V0 : Valuation τ sig (Elt Ideal)) : val23 V0 (Proc.devRef .tc main_v463) = yJ (aX V0) (aA V0) (aB V0) (aC V0) 23 := by
  refine ((step22_val (val22 V0)).2).trans ?_
  rw [val22_main_arg0 V0, val22_main_v3 V0, val22_main_arg2 V0, val22_main_arg3 V0, val22_h V0, val22_y V0]
  rw [← hI_at (aX V0) (aA V0) (aB V0) 21 22 (by decide) rfl]
  exact (yJ_at (aX V0) (aA V0) (aB V0) (aC V0) 22 23 (by decide) rfl).symm
/-- The contents after step 23. -/
def val24 (V0 : Valuation τ sig (Elt Ideal)) : Valuation τ sig (Elt Ideal) := after (stepOps23 (F := Ideal)) (val23 V0)
theorem val24_main_arg0 (V0 : Valuation τ sig (Elt Ideal)) : val24 V0 (Proc.devRef .tc main_arg0) = aX V0 :=
  (after_keep _ 10 stepOps23_ok main_arg0 (by decide +kernel) (val23 V0)).trans (val23_main_arg0 V0)
theorem val24_main_arg1 (V0 : Valuation τ sig (Elt Ideal)) : val24 V0 (Proc.devRef .tc main_arg1) = aA V0 :=
  (after_keep _ 10 stepOps23_ok main_arg1 (by decide +kernel) (val23 V0)).trans (val23_main_arg1 V0)
theorem val24_main_arg2 (V0 : Valuation τ sig (Elt Ideal)) : val24 V0 (Proc.devRef .tc main_arg2) = aB V0 :=
  (after_keep _ 10 stepOps23_ok main_arg2 (by decide +kernel) (val23 V0)).trans (val23_main_arg2 V0)
theorem val24_main_arg3 (V0 : Valuation τ sig (Elt Ideal)) : val24 V0 (Proc.devRef .tc main_arg3) = aC V0 :=
  (after_keep _ 10 stepOps23_ok main_arg3 (by decide +kernel) (val23 V0)).trans (val23_main_arg3 V0)
theorem val24_main_v3 (V0 : Valuation τ sig (Elt Ideal)) : val24 V0 (Proc.devRef .tc main_v3) = decay (aA V0) :=
  (after_keep _ 10 stepOps23_ok main_v3 (by decide +kernel) (val23 V0)).trans (val23_main_v3 V0)
theorem val24_h (V0 : Valuation τ sig (Elt Ideal)) : val24 V0 (Proc.devRef .tc main_v475) = hI (aX V0) (aA V0) (aB V0) 23 := by
  refine ((step23_val (val23 V0)).1).trans ?_
  rw [val23_main_arg0 V0, val23_main_v3 V0, val23_main_arg2 V0, val23_h V0]
  exact (hI_at (aX V0) (aA V0) (aB V0) 22 23 (by decide) rfl).symm
theorem val24_y (V0 : Valuation τ sig (Elt Ideal)) : val24 V0 (Proc.devRef .tc main_v483) = yJ (aX V0) (aA V0) (aB V0) (aC V0) 24 := by
  refine ((step23_val (val23 V0)).2).trans ?_
  rw [val23_main_arg0 V0, val23_main_v3 V0, val23_main_arg2 V0, val23_main_arg3 V0, val23_h V0, val23_y V0]
  rw [← hI_at (aX V0) (aA V0) (aB V0) 22 23 (by decide) rfl]
  exact (yJ_at (aX V0) (aA V0) (aB V0) (aC V0) 23 24 (by decide) rfl).symm
/-- The contents after step 24. -/
def val25 (V0 : Valuation τ sig (Elt Ideal)) : Valuation τ sig (Elt Ideal) := after (stepOps24 (F := Ideal)) (val24 V0)
theorem val25_main_arg0 (V0 : Valuation τ sig (Elt Ideal)) : val25 V0 (Proc.devRef .tc main_arg0) = aX V0 :=
  (after_keep _ 10 stepOps24_ok main_arg0 (by decide +kernel) (val24 V0)).trans (val24_main_arg0 V0)
theorem val25_main_arg1 (V0 : Valuation τ sig (Elt Ideal)) : val25 V0 (Proc.devRef .tc main_arg1) = aA V0 :=
  (after_keep _ 10 stepOps24_ok main_arg1 (by decide +kernel) (val24 V0)).trans (val24_main_arg1 V0)
theorem val25_main_arg2 (V0 : Valuation τ sig (Elt Ideal)) : val25 V0 (Proc.devRef .tc main_arg2) = aB V0 :=
  (after_keep _ 10 stepOps24_ok main_arg2 (by decide +kernel) (val24 V0)).trans (val24_main_arg2 V0)
theorem val25_main_arg3 (V0 : Valuation τ sig (Elt Ideal)) : val25 V0 (Proc.devRef .tc main_arg3) = aC V0 :=
  (after_keep _ 10 stepOps24_ok main_arg3 (by decide +kernel) (val24 V0)).trans (val24_main_arg3 V0)
theorem val25_main_v3 (V0 : Valuation τ sig (Elt Ideal)) : val25 V0 (Proc.devRef .tc main_v3) = decay (aA V0) :=
  (after_keep _ 10 stepOps24_ok main_v3 (by decide +kernel) (val24 V0)).trans (val24_main_v3 V0)
theorem val25_h (V0 : Valuation τ sig (Elt Ideal)) : val25 V0 (Proc.devRef .tc main_v495) = hI (aX V0) (aA V0) (aB V0) 24 := by
  refine ((step24_val (val24 V0)).1).trans ?_
  rw [val24_main_arg0 V0, val24_main_v3 V0, val24_main_arg2 V0, val24_h V0]
  exact (hI_at (aX V0) (aA V0) (aB V0) 23 24 (by decide) rfl).symm
theorem val25_y (V0 : Valuation τ sig (Elt Ideal)) : val25 V0 (Proc.devRef .tc main_v503) = yJ (aX V0) (aA V0) (aB V0) (aC V0) 25 := by
  refine ((step24_val (val24 V0)).2).trans ?_
  rw [val24_main_arg0 V0, val24_main_v3 V0, val24_main_arg2 V0, val24_main_arg3 V0, val24_h V0, val24_y V0]
  rw [← hI_at (aX V0) (aA V0) (aB V0) 23 24 (by decide) rfl]
  exact (yJ_at (aX V0) (aA V0) (aB V0) (aC V0) 24 25 (by decide) rfl).symm
/-- The contents after step 25. -/
def val26 (V0 : Valuation τ sig (Elt Ideal)) : Valuation τ sig (Elt Ideal) := after (stepOps25 (F := Ideal)) (val25 V0)
theorem val26_main_arg0 (V0 : Valuation τ sig (Elt Ideal)) : val26 V0 (Proc.devRef .tc main_arg0) = aX V0 :=
  (after_keep _ 10 stepOps25_ok main_arg0 (by decide +kernel) (val25 V0)).trans (val25_main_arg0 V0)
theorem val26_main_arg1 (V0 : Valuation τ sig (Elt Ideal)) : val26 V0 (Proc.devRef .tc main_arg1) = aA V0 :=
  (after_keep _ 10 stepOps25_ok main_arg1 (by decide +kernel) (val25 V0)).trans (val25_main_arg1 V0)
theorem val26_main_arg2 (V0 : Valuation τ sig (Elt Ideal)) : val26 V0 (Proc.devRef .tc main_arg2) = aB V0 :=
  (after_keep _ 10 stepOps25_ok main_arg2 (by decide +kernel) (val25 V0)).trans (val25_main_arg2 V0)
theorem val26_main_arg3 (V0 : Valuation τ sig (Elt Ideal)) : val26 V0 (Proc.devRef .tc main_arg3) = aC V0 :=
  (after_keep _ 10 stepOps25_ok main_arg3 (by decide +kernel) (val25 V0)).trans (val25_main_arg3 V0)
theorem val26_main_v3 (V0 : Valuation τ sig (Elt Ideal)) : val26 V0 (Proc.devRef .tc main_v3) = decay (aA V0) :=
  (after_keep _ 10 stepOps25_ok main_v3 (by decide +kernel) (val25 V0)).trans (val25_main_v3 V0)
theorem val26_h (V0 : Valuation τ sig (Elt Ideal)) : val26 V0 (Proc.devRef .tc main_v515) = hI (aX V0) (aA V0) (aB V0) 25 := by
  refine ((step25_val (val25 V0)).1).trans ?_
  rw [val25_main_arg0 V0, val25_main_v3 V0, val25_main_arg2 V0, val25_h V0]
  exact (hI_at (aX V0) (aA V0) (aB V0) 24 25 (by decide) rfl).symm
theorem val26_y (V0 : Valuation τ sig (Elt Ideal)) : val26 V0 (Proc.devRef .tc main_v523) = yJ (aX V0) (aA V0) (aB V0) (aC V0) 26 := by
  refine ((step25_val (val25 V0)).2).trans ?_
  rw [val25_main_arg0 V0, val25_main_v3 V0, val25_main_arg2 V0, val25_main_arg3 V0, val25_h V0, val25_y V0]
  rw [← hI_at (aX V0) (aA V0) (aB V0) 24 25 (by decide) rfl]
  exact (yJ_at (aX V0) (aA V0) (aB V0) (aC V0) 25 26 (by decide) rfl).symm
/-- The contents after step 26. -/
def val27 (V0 : Valuation τ sig (Elt Ideal)) : Valuation τ sig (Elt Ideal) := after (stepOps26 (F := Ideal)) (val26 V0)
theorem val27_main_arg0 (V0 : Valuation τ sig (Elt Ideal)) : val27 V0 (Proc.devRef .tc main_arg0) = aX V0 :=
  (after_keep _ 10 stepOps26_ok main_arg0 (by decide +kernel) (val26 V0)).trans (val26_main_arg0 V0)
theorem val27_main_arg1 (V0 : Valuation τ sig (Elt Ideal)) : val27 V0 (Proc.devRef .tc main_arg1) = aA V0 :=
  (after_keep _ 10 stepOps26_ok main_arg1 (by decide +kernel) (val26 V0)).trans (val26_main_arg1 V0)
theorem val27_main_arg2 (V0 : Valuation τ sig (Elt Ideal)) : val27 V0 (Proc.devRef .tc main_arg2) = aB V0 :=
  (after_keep _ 10 stepOps26_ok main_arg2 (by decide +kernel) (val26 V0)).trans (val26_main_arg2 V0)
theorem val27_main_arg3 (V0 : Valuation τ sig (Elt Ideal)) : val27 V0 (Proc.devRef .tc main_arg3) = aC V0 :=
  (after_keep _ 10 stepOps26_ok main_arg3 (by decide +kernel) (val26 V0)).trans (val26_main_arg3 V0)
theorem val27_main_v3 (V0 : Valuation τ sig (Elt Ideal)) : val27 V0 (Proc.devRef .tc main_v3) = decay (aA V0) :=
  (after_keep _ 10 stepOps26_ok main_v3 (by decide +kernel) (val26 V0)).trans (val26_main_v3 V0)
theorem val27_h (V0 : Valuation τ sig (Elt Ideal)) : val27 V0 (Proc.devRef .tc main_v535) = hI (aX V0) (aA V0) (aB V0) 26 := by
  refine ((step26_val (val26 V0)).1).trans ?_
  rw [val26_main_arg0 V0, val26_main_v3 V0, val26_main_arg2 V0, val26_h V0]
  exact (hI_at (aX V0) (aA V0) (aB V0) 25 26 (by decide) rfl).symm
theorem val27_y (V0 : Valuation τ sig (Elt Ideal)) : val27 V0 (Proc.devRef .tc main_v543) = yJ (aX V0) (aA V0) (aB V0) (aC V0) 27 := by
  refine ((step26_val (val26 V0)).2).trans ?_
  rw [val26_main_arg0 V0, val26_main_v3 V0, val26_main_arg2 V0, val26_main_arg3 V0, val26_h V0, val26_y V0]
  rw [← hI_at (aX V0) (aA V0) (aB V0) 25 26 (by decide) rfl]
  exact (yJ_at (aX V0) (aA V0) (aB V0) (aC V0) 26 27 (by decide) rfl).symm
/-- The contents after step 27. -/
def val28 (V0 : Valuation τ sig (Elt Ideal)) : Valuation τ sig (Elt Ideal) := after (stepOps27 (F := Ideal)) (val27 V0)
theorem val28_main_arg0 (V0 : Valuation τ sig (Elt Ideal)) : val28 V0 (Proc.devRef .tc main_arg0) = aX V0 :=
  (after_keep _ 10 stepOps27_ok main_arg0 (by decide +kernel) (val27 V0)).trans (val27_main_arg0 V0)
theorem val28_main_arg1 (V0 : Valuation τ sig (Elt Ideal)) : val28 V0 (Proc.devRef .tc main_arg1) = aA V0 :=
  (after_keep _ 10 stepOps27_ok main_arg1 (by decide +kernel) (val27 V0)).trans (val27_main_arg1 V0)
theorem val28_main_arg2 (V0 : Valuation τ sig (Elt Ideal)) : val28 V0 (Proc.devRef .tc main_arg2) = aB V0 :=
  (after_keep _ 10 stepOps27_ok main_arg2 (by decide +kernel) (val27 V0)).trans (val27_main_arg2 V0)
theorem val28_main_arg3 (V0 : Valuation τ sig (Elt Ideal)) : val28 V0 (Proc.devRef .tc main_arg3) = aC V0 :=
  (after_keep _ 10 stepOps27_ok main_arg3 (by decide +kernel) (val27 V0)).trans (val27_main_arg3 V0)
theorem val28_main_v3 (V0 : Valuation τ sig (Elt Ideal)) : val28 V0 (Proc.devRef .tc main_v3) = decay (aA V0) :=
  (after_keep _ 10 stepOps27_ok main_v3 (by decide +kernel) (val27 V0)).trans (val27_main_v3 V0)
theorem val28_h (V0 : Valuation τ sig (Elt Ideal)) : val28 V0 (Proc.devRef .tc main_v555) = hI (aX V0) (aA V0) (aB V0) 27 := by
  refine ((step27_val (val27 V0)).1).trans ?_
  rw [val27_main_arg0 V0, val27_main_v3 V0, val27_main_arg2 V0, val27_h V0]
  exact (hI_at (aX V0) (aA V0) (aB V0) 26 27 (by decide) rfl).symm
theorem val28_y (V0 : Valuation τ sig (Elt Ideal)) : val28 V0 (Proc.devRef .tc main_v563) = yJ (aX V0) (aA V0) (aB V0) (aC V0) 28 := by
  refine ((step27_val (val27 V0)).2).trans ?_
  rw [val27_main_arg0 V0, val27_main_v3 V0, val27_main_arg2 V0, val27_main_arg3 V0, val27_h V0, val27_y V0]
  rw [← hI_at (aX V0) (aA V0) (aB V0) 26 27 (by decide) rfl]
  exact (yJ_at (aX V0) (aA V0) (aB V0) (aC V0) 27 28 (by decide) rfl).symm
/-- The contents after step 28. -/
def val29 (V0 : Valuation τ sig (Elt Ideal)) : Valuation τ sig (Elt Ideal) := after (stepOps28 (F := Ideal)) (val28 V0)
theorem val29_main_arg0 (V0 : Valuation τ sig (Elt Ideal)) : val29 V0 (Proc.devRef .tc main_arg0) = aX V0 :=
  (after_keep _ 10 stepOps28_ok main_arg0 (by decide +kernel) (val28 V0)).trans (val28_main_arg0 V0)
theorem val29_main_arg1 (V0 : Valuation τ sig (Elt Ideal)) : val29 V0 (Proc.devRef .tc main_arg1) = aA V0 :=
  (after_keep _ 10 stepOps28_ok main_arg1 (by decide +kernel) (val28 V0)).trans (val28_main_arg1 V0)
theorem val29_main_arg2 (V0 : Valuation τ sig (Elt Ideal)) : val29 V0 (Proc.devRef .tc main_arg2) = aB V0 :=
  (after_keep _ 10 stepOps28_ok main_arg2 (by decide +kernel) (val28 V0)).trans (val28_main_arg2 V0)
theorem val29_main_arg3 (V0 : Valuation τ sig (Elt Ideal)) : val29 V0 (Proc.devRef .tc main_arg3) = aC V0 :=
  (after_keep _ 10 stepOps28_ok main_arg3 (by decide +kernel) (val28 V0)).trans (val28_main_arg3 V0)
theorem val29_main_v3 (V0 : Valuation τ sig (Elt Ideal)) : val29 V0 (Proc.devRef .tc main_v3) = decay (aA V0) :=
  (after_keep _ 10 stepOps28_ok main_v3 (by decide +kernel) (val28 V0)).trans (val28_main_v3 V0)
theorem val29_h (V0 : Valuation τ sig (Elt Ideal)) : val29 V0 (Proc.devRef .tc main_v575) = hI (aX V0) (aA V0) (aB V0) 28 := by
  refine ((step28_val (val28 V0)).1).trans ?_
  rw [val28_main_arg0 V0, val28_main_v3 V0, val28_main_arg2 V0, val28_h V0]
  exact (hI_at (aX V0) (aA V0) (aB V0) 27 28 (by decide) rfl).symm
theorem val29_y (V0 : Valuation τ sig (Elt Ideal)) : val29 V0 (Proc.devRef .tc main_v583) = yJ (aX V0) (aA V0) (aB V0) (aC V0) 29 := by
  refine ((step28_val (val28 V0)).2).trans ?_
  rw [val28_main_arg0 V0, val28_main_v3 V0, val28_main_arg2 V0, val28_main_arg3 V0, val28_h V0, val28_y V0]
  rw [← hI_at (aX V0) (aA V0) (aB V0) 27 28 (by decide) rfl]
  exact (yJ_at (aX V0) (aA V0) (aB V0) (aC V0) 28 29 (by decide) rfl).symm
/-- The contents after step 29. -/
def val30 (V0 : Valuation τ sig (Elt Ideal)) : Valuation τ sig (Elt Ideal) := after (stepOps29 (F := Ideal)) (val29 V0)
theorem val30_main_arg0 (V0 : Valuation τ sig (Elt Ideal)) : val30 V0 (Proc.devRef .tc main_arg0) = aX V0 :=
  (after_keep _ 10 stepOps29_ok main_arg0 (by decide +kernel) (val29 V0)).trans (val29_main_arg0 V0)
theorem val30_main_arg1 (V0 : Valuation τ sig (Elt Ideal)) : val30 V0 (Proc.devRef .tc main_arg1) = aA V0 :=
  (after_keep _ 10 stepOps29_ok main_arg1 (by decide +kernel) (val29 V0)).trans (val29_main_arg1 V0)
theorem val30_main_arg2 (V0 : Valuation τ sig (Elt Ideal)) : val30 V0 (Proc.devRef .tc main_arg2) = aB V0 :=
  (after_keep _ 10 stepOps29_ok main_arg2 (by decide +kernel) (val29 V0)).trans (val29_main_arg2 V0)
theorem val30_main_arg3 (V0 : Valuation τ sig (Elt Ideal)) : val30 V0 (Proc.devRef .tc main_arg3) = aC V0 :=
  (after_keep _ 10 stepOps29_ok main_arg3 (by decide +kernel) (val29 V0)).trans (val29_main_arg3 V0)
theorem val30_main_v3 (V0 : Valuation τ sig (Elt Ideal)) : val30 V0 (Proc.devRef .tc main_v3) = decay (aA V0) :=
  (after_keep _ 10 stepOps29_ok main_v3 (by decide +kernel) (val29 V0)).trans (val29_main_v3 V0)
theorem val30_h (V0 : Valuation τ sig (Elt Ideal)) : val30 V0 (Proc.devRef .tc main_v595) = hI (aX V0) (aA V0) (aB V0) 29 := by
  refine ((step29_val (val29 V0)).1).trans ?_
  rw [val29_main_arg0 V0, val29_main_v3 V0, val29_main_arg2 V0, val29_h V0]
  exact (hI_at (aX V0) (aA V0) (aB V0) 28 29 (by decide) rfl).symm
theorem val30_y (V0 : Valuation τ sig (Elt Ideal)) : val30 V0 (Proc.devRef .tc main_v603) = yJ (aX V0) (aA V0) (aB V0) (aC V0) 30 := by
  refine ((step29_val (val29 V0)).2).trans ?_
  rw [val29_main_arg0 V0, val29_main_v3 V0, val29_main_arg2 V0, val29_main_arg3 V0, val29_h V0, val29_y V0]
  rw [← hI_at (aX V0) (aA V0) (aB V0) 28 29 (by decide) rfl]
  exact (yJ_at (aX V0) (aA V0) (aB V0) (aC V0) 29 30 (by decide) rfl).symm
/-- The contents after step 30. -/
def val31 (V0 : Valuation τ sig (Elt Ideal)) : Valuation τ sig (Elt Ideal) := after (stepOps30 (F := Ideal)) (val30 V0)
theorem val31_main_arg0 (V0 : Valuation τ sig (Elt Ideal)) : val31 V0 (Proc.devRef .tc main_arg0) = aX V0 :=
  (after_keep _ 10 stepOps30_ok main_arg0 (by decide +kernel) (val30 V0)).trans (val30_main_arg0 V0)
theorem val31_main_arg1 (V0 : Valuation τ sig (Elt Ideal)) : val31 V0 (Proc.devRef .tc main_arg1) = aA V0 :=
  (after_keep _ 10 stepOps30_ok main_arg1 (by decide +kernel) (val30 V0)).trans (val30_main_arg1 V0)
theorem val31_main_arg2 (V0 : Valuation τ sig (Elt Ideal)) : val31 V0 (Proc.devRef .tc main_arg2) = aB V0 :=
  (after_keep _ 10 stepOps30_ok main_arg2 (by decide +kernel) (val30 V0)).trans (val30_main_arg2 V0)
theorem val31_main_arg3 (V0 : Valuation τ sig (Elt Ideal)) : val31 V0 (Proc.devRef .tc main_arg3) = aC V0 :=
  (after_keep _ 10 stepOps30_ok main_arg3 (by decide +kernel) (val30 V0)).trans (val30_main_arg3 V0)
theorem val31_main_v3 (V0 : Valuation τ sig (Elt Ideal)) : val31 V0 (Proc.devRef .tc main_v3) = decay (aA V0) :=
  (after_keep _ 10 stepOps30_ok main_v3 (by decide +kernel) (val30 V0)).trans (val30_main_v3 V0)
theorem val31_h (V0 : Valuation τ sig (Elt Ideal)) : val31 V0 (Proc.devRef .tc main_v615) = hI (aX V0) (aA V0) (aB V0) 30 := by
  refine ((step30_val (val30 V0)).1).trans ?_
  rw [val30_main_arg0 V0, val30_main_v3 V0, val30_main_arg2 V0, val30_h V0]
  exact (hI_at (aX V0) (aA V0) (aB V0) 29 30 (by decide) rfl).symm
theorem val31_y (V0 : Valuation τ sig (Elt Ideal)) : val31 V0 (Proc.devRef .tc main_v623) = yJ (aX V0) (aA V0) (aB V0) (aC V0) 31 := by
  refine ((step30_val (val30 V0)).2).trans ?_
  rw [val30_main_arg0 V0, val30_main_v3 V0, val30_main_arg2 V0, val30_main_arg3 V0, val30_h V0, val30_y V0]
  rw [← hI_at (aX V0) (aA V0) (aB V0) 29 30 (by decide) rfl]
  exact (yJ_at (aX V0) (aA V0) (aB V0) (aC V0) 30 31 (by decide) rfl).symm
/-- The contents after step 31. -/
def val32 (V0 : Valuation τ sig (Elt Ideal)) : Valuation τ sig (Elt Ideal) := after (stepOps31 (F := Ideal)) (val31 V0)
theorem val32_main_arg0 (V0 : Valuation τ sig (Elt Ideal)) : val32 V0 (Proc.devRef .tc main_arg0) = aX V0 :=
  (after_keep _ 10 stepOps31_ok main_arg0 (by decide +kernel) (val31 V0)).trans (val31_main_arg0 V0)
theorem val32_main_arg1 (V0 : Valuation τ sig (Elt Ideal)) : val32 V0 (Proc.devRef .tc main_arg1) = aA V0 :=
  (after_keep _ 10 stepOps31_ok main_arg1 (by decide +kernel) (val31 V0)).trans (val31_main_arg1 V0)
theorem val32_main_arg2 (V0 : Valuation τ sig (Elt Ideal)) : val32 V0 (Proc.devRef .tc main_arg2) = aB V0 :=
  (after_keep _ 10 stepOps31_ok main_arg2 (by decide +kernel) (val31 V0)).trans (val31_main_arg2 V0)
theorem val32_main_arg3 (V0 : Valuation τ sig (Elt Ideal)) : val32 V0 (Proc.devRef .tc main_arg3) = aC V0 :=
  (after_keep _ 10 stepOps31_ok main_arg3 (by decide +kernel) (val31 V0)).trans (val31_main_arg3 V0)
theorem val32_main_v3 (V0 : Valuation τ sig (Elt Ideal)) : val32 V0 (Proc.devRef .tc main_v3) = decay (aA V0) :=
  (after_keep _ 10 stepOps31_ok main_v3 (by decide +kernel) (val31 V0)).trans (val31_main_v3 V0)
theorem val32_h (V0 : Valuation τ sig (Elt Ideal)) : val32 V0 (Proc.devRef .tc main_v635) = hI (aX V0) (aA V0) (aB V0) 31 := by
  refine ((step31_val (val31 V0)).1).trans ?_
  rw [val31_main_arg0 V0, val31_main_v3 V0, val31_main_arg2 V0, val31_h V0]
  exact (hI_at (aX V0) (aA V0) (aB V0) 30 31 (by decide) rfl).symm
theorem val32_y (V0 : Valuation τ sig (Elt Ideal)) : val32 V0 (Proc.devRef .tc main_v643) = yJ (aX V0) (aA V0) (aB V0) (aC V0) 32 := by
  refine ((step31_val (val31 V0)).2).trans ?_
  rw [val31_main_arg0 V0, val31_main_v3 V0, val31_main_arg2 V0, val31_main_arg3 V0, val31_h V0, val31_y V0]
  rw [← hI_at (aX V0) (aA V0) (aB V0) 30 31 (by decide) rfl]
  exact (yJ_at (aX V0) (aA V0) (aB V0) (aC V0) 31 32 (by decide) rfl).symm
/-- The contents after step 32. -/
def val33 (V0 : Valuation τ sig (Elt Ideal)) : Valuation τ sig (Elt Ideal) := after (stepOps32 (F := Ideal)) (val32 V0)
theorem val33_main_arg0 (V0 : Valuation τ sig (Elt Ideal)) : val33 V0 (Proc.devRef .tc main_arg0) = aX V0 :=
  (after_keep _ 10 stepOps32_ok main_arg0 (by decide +kernel) (val32 V0)).trans (val32_main_arg0 V0)
theorem val33_main_arg1 (V0 : Valuation τ sig (Elt Ideal)) : val33 V0 (Proc.devRef .tc main_arg1) = aA V0 :=
  (after_keep _ 10 stepOps32_ok main_arg1 (by decide +kernel) (val32 V0)).trans (val32_main_arg1 V0)
theorem val33_main_arg2 (V0 : Valuation τ sig (Elt Ideal)) : val33 V0 (Proc.devRef .tc main_arg2) = aB V0 :=
  (after_keep _ 10 stepOps32_ok main_arg2 (by decide +kernel) (val32 V0)).trans (val32_main_arg2 V0)
theorem val33_main_arg3 (V0 : Valuation τ sig (Elt Ideal)) : val33 V0 (Proc.devRef .tc main_arg3) = aC V0 :=
  (after_keep _ 10 stepOps32_ok main_arg3 (by decide +kernel) (val32 V0)).trans (val32_main_arg3 V0)
theorem val33_main_v3 (V0 : Valuation τ sig (Elt Ideal)) : val33 V0 (Proc.devRef .tc main_v3) = decay (aA V0) :=
  (after_keep _ 10 stepOps32_ok main_v3 (by decide +kernel) (val32 V0)).trans (val32_main_v3 V0)
theorem val33_h (V0 : Valuation τ sig (Elt Ideal)) : val33 V0 (Proc.devRef .tc main_v655) = hI (aX V0) (aA V0) (aB V0) 32 := by
  refine ((step32_val (val32 V0)).1).trans ?_
  rw [val32_main_arg0 V0, val32_main_v3 V0, val32_main_arg2 V0, val32_h V0]
  exact (hI_at (aX V0) (aA V0) (aB V0) 31 32 (by decide) rfl).symm
theorem val33_y (V0 : Valuation τ sig (Elt Ideal)) : val33 V0 (Proc.devRef .tc main_v663) = yJ (aX V0) (aA V0) (aB V0) (aC V0) 33 := by
  refine ((step32_val (val32 V0)).2).trans ?_
  rw [val32_main_arg0 V0, val32_main_v3 V0, val32_main_arg2 V0, val32_main_arg3 V0, val32_h V0, val32_y V0]
  rw [← hI_at (aX V0) (aA V0) (aB V0) 31 32 (by decide) rfl]
  exact (yJ_at (aX V0) (aA V0) (aB V0) (aC V0) 32 33 (by decide) rfl).symm
/-- The contents after step 33. -/
def val34 (V0 : Valuation τ sig (Elt Ideal)) : Valuation τ sig (Elt Ideal) := after (stepOps33 (F := Ideal)) (val33 V0)
theorem val34_main_arg0 (V0 : Valuation τ sig (Elt Ideal)) : val34 V0 (Proc.devRef .tc main_arg0) = aX V0 :=
  (after_keep _ 10 stepOps33_ok main_arg0 (by decide +kernel) (val33 V0)).trans (val33_main_arg0 V0)
theorem val34_main_arg1 (V0 : Valuation τ sig (Elt Ideal)) : val34 V0 (Proc.devRef .tc main_arg1) = aA V0 :=
  (after_keep _ 10 stepOps33_ok main_arg1 (by decide +kernel) (val33 V0)).trans (val33_main_arg1 V0)
theorem val34_main_arg2 (V0 : Valuation τ sig (Elt Ideal)) : val34 V0 (Proc.devRef .tc main_arg2) = aB V0 :=
  (after_keep _ 10 stepOps33_ok main_arg2 (by decide +kernel) (val33 V0)).trans (val33_main_arg2 V0)
theorem val34_main_arg3 (V0 : Valuation τ sig (Elt Ideal)) : val34 V0 (Proc.devRef .tc main_arg3) = aC V0 :=
  (after_keep _ 10 stepOps33_ok main_arg3 (by decide +kernel) (val33 V0)).trans (val33_main_arg3 V0)
theorem val34_main_v3 (V0 : Valuation τ sig (Elt Ideal)) : val34 V0 (Proc.devRef .tc main_v3) = decay (aA V0) :=
  (after_keep _ 10 stepOps33_ok main_v3 (by decide +kernel) (val33 V0)).trans (val33_main_v3 V0)
theorem val34_h (V0 : Valuation τ sig (Elt Ideal)) : val34 V0 (Proc.devRef .tc main_v675) = hI (aX V0) (aA V0) (aB V0) 33 := by
  refine ((step33_val (val33 V0)).1).trans ?_
  rw [val33_main_arg0 V0, val33_main_v3 V0, val33_main_arg2 V0, val33_h V0]
  exact (hI_at (aX V0) (aA V0) (aB V0) 32 33 (by decide) rfl).symm
theorem val34_y (V0 : Valuation τ sig (Elt Ideal)) : val34 V0 (Proc.devRef .tc main_v683) = yJ (aX V0) (aA V0) (aB V0) (aC V0) 34 := by
  refine ((step33_val (val33 V0)).2).trans ?_
  rw [val33_main_arg0 V0, val33_main_v3 V0, val33_main_arg2 V0, val33_main_arg3 V0, val33_h V0, val33_y V0]
  rw [← hI_at (aX V0) (aA V0) (aB V0) 32 33 (by decide) rfl]
  exact (yJ_at (aX V0) (aA V0) (aB V0) (aC V0) 33 34 (by decide) rfl).symm
/-- The contents after step 34. -/
def val35 (V0 : Valuation τ sig (Elt Ideal)) : Valuation τ sig (Elt Ideal) := after (stepOps34 (F := Ideal)) (val34 V0)
theorem val35_main_arg0 (V0 : Valuation τ sig (Elt Ideal)) : val35 V0 (Proc.devRef .tc main_arg0) = aX V0 :=
  (after_keep _ 10 stepOps34_ok main_arg0 (by decide +kernel) (val34 V0)).trans (val34_main_arg0 V0)
theorem val35_main_arg1 (V0 : Valuation τ sig (Elt Ideal)) : val35 V0 (Proc.devRef .tc main_arg1) = aA V0 :=
  (after_keep _ 10 stepOps34_ok main_arg1 (by decide +kernel) (val34 V0)).trans (val34_main_arg1 V0)
theorem val35_main_arg2 (V0 : Valuation τ sig (Elt Ideal)) : val35 V0 (Proc.devRef .tc main_arg2) = aB V0 :=
  (after_keep _ 10 stepOps34_ok main_arg2 (by decide +kernel) (val34 V0)).trans (val34_main_arg2 V0)
theorem val35_main_arg3 (V0 : Valuation τ sig (Elt Ideal)) : val35 V0 (Proc.devRef .tc main_arg3) = aC V0 :=
  (after_keep _ 10 stepOps34_ok main_arg3 (by decide +kernel) (val34 V0)).trans (val34_main_arg3 V0)
theorem val35_main_v3 (V0 : Valuation τ sig (Elt Ideal)) : val35 V0 (Proc.devRef .tc main_v3) = decay (aA V0) :=
  (after_keep _ 10 stepOps34_ok main_v3 (by decide +kernel) (val34 V0)).trans (val34_main_v3 V0)
theorem val35_h (V0 : Valuation τ sig (Elt Ideal)) : val35 V0 (Proc.devRef .tc main_v695) = hI (aX V0) (aA V0) (aB V0) 34 := by
  refine ((step34_val (val34 V0)).1).trans ?_
  rw [val34_main_arg0 V0, val34_main_v3 V0, val34_main_arg2 V0, val34_h V0]
  exact (hI_at (aX V0) (aA V0) (aB V0) 33 34 (by decide) rfl).symm
theorem val35_y (V0 : Valuation τ sig (Elt Ideal)) : val35 V0 (Proc.devRef .tc main_v703) = yJ (aX V0) (aA V0) (aB V0) (aC V0) 35 := by
  refine ((step34_val (val34 V0)).2).trans ?_
  rw [val34_main_arg0 V0, val34_main_v3 V0, val34_main_arg2 V0, val34_main_arg3 V0, val34_h V0, val34_y V0]
  rw [← hI_at (aX V0) (aA V0) (aB V0) 33 34 (by decide) rfl]
  exact (yJ_at (aX V0) (aA V0) (aB V0) (aC V0) 34 35 (by decide) rfl).symm
/-- The contents after step 35. -/
def val36 (V0 : Valuation τ sig (Elt Ideal)) : Valuation τ sig (Elt Ideal) := after (stepOps35 (F := Ideal)) (val35 V0)
theorem val36_main_arg0 (V0 : Valuation τ sig (Elt Ideal)) : val36 V0 (Proc.devRef .tc main_arg0) = aX V0 :=
  (after_keep _ 10 stepOps35_ok main_arg0 (by decide +kernel) (val35 V0)).trans (val35_main_arg0 V0)
theorem val36_main_arg1 (V0 : Valuation τ sig (Elt Ideal)) : val36 V0 (Proc.devRef .tc main_arg1) = aA V0 :=
  (after_keep _ 10 stepOps35_ok main_arg1 (by decide +kernel) (val35 V0)).trans (val35_main_arg1 V0)
theorem val36_main_arg2 (V0 : Valuation τ sig (Elt Ideal)) : val36 V0 (Proc.devRef .tc main_arg2) = aB V0 :=
  (after_keep _ 10 stepOps35_ok main_arg2 (by decide +kernel) (val35 V0)).trans (val35_main_arg2 V0)
theorem val36_main_arg3 (V0 : Valuation τ sig (Elt Ideal)) : val36 V0 (Proc.devRef .tc main_arg3) = aC V0 :=
  (after_keep _ 10 stepOps35_ok main_arg3 (by decide +kernel) (val35 V0)).trans (val35_main_arg3 V0)
theorem val36_main_v3 (V0 : Valuation τ sig (Elt Ideal)) : val36 V0 (Proc.devRef .tc main_v3) = decay (aA V0) :=
  (after_keep _ 10 stepOps35_ok main_v3 (by decide +kernel) (val35 V0)).trans (val35_main_v3 V0)
theorem val36_h (V0 : Valuation τ sig (Elt Ideal)) : val36 V0 (Proc.devRef .tc main_v715) = hI (aX V0) (aA V0) (aB V0) 35 := by
  refine ((step35_val (val35 V0)).1).trans ?_
  rw [val35_main_arg0 V0, val35_main_v3 V0, val35_main_arg2 V0, val35_h V0]
  exact (hI_at (aX V0) (aA V0) (aB V0) 34 35 (by decide) rfl).symm
theorem val36_y (V0 : Valuation τ sig (Elt Ideal)) : val36 V0 (Proc.devRef .tc main_v723) = yJ (aX V0) (aA V0) (aB V0) (aC V0) 36 := by
  refine ((step35_val (val35 V0)).2).trans ?_
  rw [val35_main_arg0 V0, val35_main_v3 V0, val35_main_arg2 V0, val35_main_arg3 V0, val35_h V0, val35_y V0]
  rw [← hI_at (aX V0) (aA V0) (aB V0) 34 35 (by decide) rfl]
  exact (yJ_at (aX V0) (aA V0) (aB V0) (aC V0) 35 36 (by decide) rfl).symm
/-- The contents after step 36. -/
def val37 (V0 : Valuation τ sig (Elt Ideal)) : Valuation τ sig (Elt Ideal) := after (stepOps36 (F := Ideal)) (val36 V0)
theorem val37_main_arg0 (V0 : Valuation τ sig (Elt Ideal)) : val37 V0 (Proc.devRef .tc main_arg0) = aX V0 :=
  (after_keep _ 10 stepOps36_ok main_arg0 (by decide +kernel) (val36 V0)).trans (val36_main_arg0 V0)
theorem val37_main_arg1 (V0 : Valuation τ sig (Elt Ideal)) : val37 V0 (Proc.devRef .tc main_arg1) = aA V0 :=
  (after_keep _ 10 stepOps36_ok main_arg1 (by decide +kernel) (val36 V0)).trans (val36_main_arg1 V0)
theorem val37_main_arg2 (V0 : Valuation τ sig (Elt Ideal)) : val37 V0 (Proc.devRef .tc main_arg2) = aB V0 :=
  (after_keep _ 10 stepOps36_ok main_arg2 (by decide +kernel) (val36 V0)).trans (val36_main_arg2 V0)
theorem val37_main_arg3 (V0 : Valuation τ sig (Elt Ideal)) : val37 V0 (Proc.devRef .tc main_arg3) = aC V0 :=
  (after_keep _ 10 stepOps36_ok main_arg3 (by decide +kernel) (val36 V0)).trans (val36_main_arg3 V0)
theorem val37_main_v3 (V0 : Valuation τ sig (Elt Ideal)) : val37 V0 (Proc.devRef .tc main_v3) = decay (aA V0) :=
  (after_keep _ 10 stepOps36_ok main_v3 (by decide +kernel) (val36 V0)).trans (val36_main_v3 V0)
theorem val37_h (V0 : Valuation τ sig (Elt Ideal)) : val37 V0 (Proc.devRef .tc main_v735) = hI (aX V0) (aA V0) (aB V0) 36 := by
  refine ((step36_val (val36 V0)).1).trans ?_
  rw [val36_main_arg0 V0, val36_main_v3 V0, val36_main_arg2 V0, val36_h V0]
  exact (hI_at (aX V0) (aA V0) (aB V0) 35 36 (by decide) rfl).symm
theorem val37_y (V0 : Valuation τ sig (Elt Ideal)) : val37 V0 (Proc.devRef .tc main_v743) = yJ (aX V0) (aA V0) (aB V0) (aC V0) 37 := by
  refine ((step36_val (val36 V0)).2).trans ?_
  rw [val36_main_arg0 V0, val36_main_v3 V0, val36_main_arg2 V0, val36_main_arg3 V0, val36_h V0, val36_y V0]
  rw [← hI_at (aX V0) (aA V0) (aB V0) 35 36 (by decide) rfl]
  exact (yJ_at (aX V0) (aA V0) (aB V0) (aC V0) 36 37 (by decide) rfl).symm
/-- The contents after step 37. -/
def val38 (V0 : Valuation τ sig (Elt Ideal)) : Valuation τ sig (Elt Ideal) := after (stepOps37 (F := Ideal)) (val37 V0)
theorem val38_main_arg0 (V0 : Valuation τ sig (Elt Ideal)) : val38 V0 (Proc.devRef .tc main_arg0) = aX V0 :=
  (after_keep _ 10 stepOps37_ok main_arg0 (by decide +kernel) (val37 V0)).trans (val37_main_arg0 V0)
theorem val38_main_arg1 (V0 : Valuation τ sig (Elt Ideal)) : val38 V0 (Proc.devRef .tc main_arg1) = aA V0 :=
  (after_keep _ 10 stepOps37_ok main_arg1 (by decide +kernel) (val37 V0)).trans (val37_main_arg1 V0)
theorem val38_main_arg2 (V0 : Valuation τ sig (Elt Ideal)) : val38 V0 (Proc.devRef .tc main_arg2) = aB V0 :=
  (after_keep _ 10 stepOps37_ok main_arg2 (by decide +kernel) (val37 V0)).trans (val37_main_arg2 V0)
theorem val38_main_arg3 (V0 : Valuation τ sig (Elt Ideal)) : val38 V0 (Proc.devRef .tc main_arg3) = aC V0 :=
  (after_keep _ 10 stepOps37_ok main_arg3 (by decide +kernel) (val37 V0)).trans (val37_main_arg3 V0)
theorem val38_main_v3 (V0 : Valuation τ sig (Elt Ideal)) : val38 V0 (Proc.devRef .tc main_v3) = decay (aA V0) :=
  (after_keep _ 10 stepOps37_ok main_v3 (by decide +kernel) (val37 V0)).trans (val37_main_v3 V0)
theorem val38_h (V0 : Valuation τ sig (Elt Ideal)) : val38 V0 (Proc.devRef .tc main_v755) = hI (aX V0) (aA V0) (aB V0) 37 := by
  refine ((step37_val (val37 V0)).1).trans ?_
  rw [val37_main_arg0 V0, val37_main_v3 V0, val37_main_arg2 V0, val37_h V0]
  exact (hI_at (aX V0) (aA V0) (aB V0) 36 37 (by decide) rfl).symm
theorem val38_y (V0 : Valuation τ sig (Elt Ideal)) : val38 V0 (Proc.devRef .tc main_v763) = yJ (aX V0) (aA V0) (aB V0) (aC V0) 38 := by
  refine ((step37_val (val37 V0)).2).trans ?_
  rw [val37_main_arg0 V0, val37_main_v3 V0, val37_main_arg2 V0, val37_main_arg3 V0, val37_h V0, val37_y V0]
  rw [← hI_at (aX V0) (aA V0) (aB V0) 36 37 (by decide) rfl]
  exact (yJ_at (aX V0) (aA V0) (aB V0) (aC V0) 37 38 (by decide) rfl).symm
/-- The contents after step 38. -/
def val39 (V0 : Valuation τ sig (Elt Ideal)) : Valuation τ sig (Elt Ideal) := after (stepOps38 (F := Ideal)) (val38 V0)
theorem val39_main_arg0 (V0 : Valuation τ sig (Elt Ideal)) : val39 V0 (Proc.devRef .tc main_arg0) = aX V0 :=
  (after_keep _ 10 stepOps38_ok main_arg0 (by decide +kernel) (val38 V0)).trans (val38_main_arg0 V0)
theorem val39_main_arg1 (V0 : Valuation τ sig (Elt Ideal)) : val39 V0 (Proc.devRef .tc main_arg1) = aA V0 :=
  (after_keep _ 10 stepOps38_ok main_arg1 (by decide +kernel) (val38 V0)).trans (val38_main_arg1 V0)
theorem val39_main_arg2 (V0 : Valuation τ sig (Elt Ideal)) : val39 V0 (Proc.devRef .tc main_arg2) = aB V0 :=
  (after_keep _ 10 stepOps38_ok main_arg2 (by decide +kernel) (val38 V0)).trans (val38_main_arg2 V0)
theorem val39_main_arg3 (V0 : Valuation τ sig (Elt Ideal)) : val39 V0 (Proc.devRef .tc main_arg3) = aC V0 :=
  (after_keep _ 10 stepOps38_ok main_arg3 (by decide +kernel) (val38 V0)).trans (val38_main_arg3 V0)
theorem val39_main_v3 (V0 : Valuation τ sig (Elt Ideal)) : val39 V0 (Proc.devRef .tc main_v3) = decay (aA V0) :=
  (after_keep _ 10 stepOps38_ok main_v3 (by decide +kernel) (val38 V0)).trans (val38_main_v3 V0)
theorem val39_h (V0 : Valuation τ sig (Elt Ideal)) : val39 V0 (Proc.devRef .tc main_v775) = hI (aX V0) (aA V0) (aB V0) 38 := by
  refine ((step38_val (val38 V0)).1).trans ?_
  rw [val38_main_arg0 V0, val38_main_v3 V0, val38_main_arg2 V0, val38_h V0]
  exact (hI_at (aX V0) (aA V0) (aB V0) 37 38 (by decide) rfl).symm
theorem val39_y (V0 : Valuation τ sig (Elt Ideal)) : val39 V0 (Proc.devRef .tc main_v783) = yJ (aX V0) (aA V0) (aB V0) (aC V0) 39 := by
  refine ((step38_val (val38 V0)).2).trans ?_
  rw [val38_main_arg0 V0, val38_main_v3 V0, val38_main_arg2 V0, val38_main_arg3 V0, val38_h V0, val38_y V0]
  rw [← hI_at (aX V0) (aA V0) (aB V0) 37 38 (by decide) rfl]
  exact (yJ_at (aX V0) (aA V0) (aB V0) (aC V0) 38 39 (by decide) rfl).symm
/-- The contents after step 39. -/
def val40 (V0 : Valuation τ sig (Elt Ideal)) : Valuation τ sig (Elt Ideal) := after (stepOps39 (F := Ideal)) (val39 V0)
theorem val40_main_arg0 (V0 : Valuation τ sig (Elt Ideal)) : val40 V0 (Proc.devRef .tc main_arg0) = aX V0 :=
  (after_keep _ 10 stepOps39_ok main_arg0 (by decide +kernel) (val39 V0)).trans (val39_main_arg0 V0)
theorem val40_main_arg1 (V0 : Valuation τ sig (Elt Ideal)) : val40 V0 (Proc.devRef .tc main_arg1) = aA V0 :=
  (after_keep _ 10 stepOps39_ok main_arg1 (by decide +kernel) (val39 V0)).trans (val39_main_arg1 V0)
theorem val40_main_arg2 (V0 : Valuation τ sig (Elt Ideal)) : val40 V0 (Proc.devRef .tc main_arg2) = aB V0 :=
  (after_keep _ 10 stepOps39_ok main_arg2 (by decide +kernel) (val39 V0)).trans (val39_main_arg2 V0)
theorem val40_main_arg3 (V0 : Valuation τ sig (Elt Ideal)) : val40 V0 (Proc.devRef .tc main_arg3) = aC V0 :=
  (after_keep _ 10 stepOps39_ok main_arg3 (by decide +kernel) (val39 V0)).trans (val39_main_arg3 V0)
theorem val40_main_v3 (V0 : Valuation τ sig (Elt Ideal)) : val40 V0 (Proc.devRef .tc main_v3) = decay (aA V0) :=
  (after_keep _ 10 stepOps39_ok main_v3 (by decide +kernel) (val39 V0)).trans (val39_main_v3 V0)
theorem val40_h (V0 : Valuation τ sig (Elt Ideal)) : val40 V0 (Proc.devRef .tc main_v795) = hI (aX V0) (aA V0) (aB V0) 39 := by
  refine ((step39_val (val39 V0)).1).trans ?_
  rw [val39_main_arg0 V0, val39_main_v3 V0, val39_main_arg2 V0, val39_h V0]
  exact (hI_at (aX V0) (aA V0) (aB V0) 38 39 (by decide) rfl).symm
theorem val40_y (V0 : Valuation τ sig (Elt Ideal)) : val40 V0 (Proc.devRef .tc main_v803) = yJ (aX V0) (aA V0) (aB V0) (aC V0) 40 := by
  refine ((step39_val (val39 V0)).2).trans ?_
  rw [val39_main_arg0 V0, val39_main_v3 V0, val39_main_arg2 V0, val39_main_arg3 V0, val39_h V0, val39_y V0]
  rw [← hI_at (aX V0) (aA V0) (aB V0) 38 39 (by decide) rfl]
  exact (yJ_at (aX V0) (aA V0) (aB V0) (aC V0) 39 40 (by decide) rfl).symm
/-- The contents after step 40. -/
def val41 (V0 : Valuation τ sig (Elt Ideal)) : Valuation τ sig (Elt Ideal) := after (stepOps40 (F := Ideal)) (val40 V0)
theorem val41_main_arg0 (V0 : Valuation τ sig (Elt Ideal)) : val41 V0 (Proc.devRef .tc main_arg0) = aX V0 :=
  (after_keep _ 10 stepOps40_ok main_arg0 (by decide +kernel) (val40 V0)).trans (val40_main_arg0 V0)
theorem val41_main_arg1 (V0 : Valuation τ sig (Elt Ideal)) : val41 V0 (Proc.devRef .tc main_arg1) = aA V0 :=
  (after_keep _ 10 stepOps40_ok main_arg1 (by decide +kernel) (val40 V0)).trans (val40_main_arg1 V0)
theorem val41_main_arg2 (V0 : Valuation τ sig (Elt Ideal)) : val41 V0 (Proc.devRef .tc main_arg2) = aB V0 :=
  (after_keep _ 10 stepOps40_ok main_arg2 (by decide +kernel) (val40 V0)).trans (val40_main_arg2 V0)
theorem val41_main_arg3 (V0 : Valuation τ sig (Elt Ideal)) : val41 V0 (Proc.devRef .tc main_arg3) = aC V0 :=
  (after_keep _ 10 stepOps40_ok main_arg3 (by decide +kernel) (val40 V0)).trans (val40_main_arg3 V0)
theorem val41_main_v3 (V0 : Valuation τ sig (Elt Ideal)) : val41 V0 (Proc.devRef .tc main_v3) = decay (aA V0) :=
  (after_keep _ 10 stepOps40_ok main_v3 (by decide +kernel) (val40 V0)).trans (val40_main_v3 V0)
theorem val41_h (V0 : Valuation τ sig (Elt Ideal)) : val41 V0 (Proc.devRef .tc main_v815) = hI (aX V0) (aA V0) (aB V0) 40 := by
  refine ((step40_val (val40 V0)).1).trans ?_
  rw [val40_main_arg0 V0, val40_main_v3 V0, val40_main_arg2 V0, val40_h V0]
  exact (hI_at (aX V0) (aA V0) (aB V0) 39 40 (by decide) rfl).symm
theorem val41_y (V0 : Valuation τ sig (Elt Ideal)) : val41 V0 (Proc.devRef .tc main_v823) = yJ (aX V0) (aA V0) (aB V0) (aC V0) 41 := by
  refine ((step40_val (val40 V0)).2).trans ?_
  rw [val40_main_arg0 V0, val40_main_v3 V0, val40_main_arg2 V0, val40_main_arg3 V0, val40_h V0, val40_y V0]
  rw [← hI_at (aX V0) (aA V0) (aB V0) 39 40 (by decide) rfl]
  exact (yJ_at (aX V0) (aA V0) (aB V0) (aC V0) 40 41 (by decide) rfl).symm
/-- The contents after step 41. -/
def val42 (V0 : Valuation τ sig (Elt Ideal)) : Valuation τ sig (Elt Ideal) := after (stepOps41 (F := Ideal)) (val41 V0)
theorem val42_main_arg0 (V0 : Valuation τ sig (Elt Ideal)) : val42 V0 (Proc.devRef .tc main_arg0) = aX V0 :=
  (after_keep _ 10 stepOps41_ok main_arg0 (by decide +kernel) (val41 V0)).trans (val41_main_arg0 V0)
theorem val42_main_arg1 (V0 : Valuation τ sig (Elt Ideal)) : val42 V0 (Proc.devRef .tc main_arg1) = aA V0 :=
  (after_keep _ 10 stepOps41_ok main_arg1 (by decide +kernel) (val41 V0)).trans (val41_main_arg1 V0)
theorem val42_main_arg2 (V0 : Valuation τ sig (Elt Ideal)) : val42 V0 (Proc.devRef .tc main_arg2) = aB V0 :=
  (after_keep _ 10 stepOps41_ok main_arg2 (by decide +kernel) (val41 V0)).trans (val41_main_arg2 V0)
theorem val42_main_arg3 (V0 : Valuation τ sig (Elt Ideal)) : val42 V0 (Proc.devRef .tc main_arg3) = aC V0 :=
  (after_keep _ 10 stepOps41_ok main_arg3 (by decide +kernel) (val41 V0)).trans (val41_main_arg3 V0)
theorem val42_main_v3 (V0 : Valuation τ sig (Elt Ideal)) : val42 V0 (Proc.devRef .tc main_v3) = decay (aA V0) :=
  (after_keep _ 10 stepOps41_ok main_v3 (by decide +kernel) (val41 V0)).trans (val41_main_v3 V0)
theorem val42_h (V0 : Valuation τ sig (Elt Ideal)) : val42 V0 (Proc.devRef .tc main_v835) = hI (aX V0) (aA V0) (aB V0) 41 := by
  refine ((step41_val (val41 V0)).1).trans ?_
  rw [val41_main_arg0 V0, val41_main_v3 V0, val41_main_arg2 V0, val41_h V0]
  exact (hI_at (aX V0) (aA V0) (aB V0) 40 41 (by decide) rfl).symm
theorem val42_y (V0 : Valuation τ sig (Elt Ideal)) : val42 V0 (Proc.devRef .tc main_v843) = yJ (aX V0) (aA V0) (aB V0) (aC V0) 42 := by
  refine ((step41_val (val41 V0)).2).trans ?_
  rw [val41_main_arg0 V0, val41_main_v3 V0, val41_main_arg2 V0, val41_main_arg3 V0, val41_h V0, val41_y V0]
  rw [← hI_at (aX V0) (aA V0) (aB V0) 40 41 (by decide) rfl]
  exact (yJ_at (aX V0) (aA V0) (aB V0) (aC V0) 41 42 (by decide) rfl).symm
/-- The contents after step 42. -/
def val43 (V0 : Valuation τ sig (Elt Ideal)) : Valuation τ sig (Elt Ideal) := after (stepOps42 (F := Ideal)) (val42 V0)
theorem val43_main_arg0 (V0 : Valuation τ sig (Elt Ideal)) : val43 V0 (Proc.devRef .tc main_arg0) = aX V0 :=
  (after_keep _ 10 stepOps42_ok main_arg0 (by decide +kernel) (val42 V0)).trans (val42_main_arg0 V0)
theorem val43_main_arg1 (V0 : Valuation τ sig (Elt Ideal)) : val43 V0 (Proc.devRef .tc main_arg1) = aA V0 :=
  (after_keep _ 10 stepOps42_ok main_arg1 (by decide +kernel) (val42 V0)).trans (val42_main_arg1 V0)
theorem val43_main_arg2 (V0 : Valuation τ sig (Elt Ideal)) : val43 V0 (Proc.devRef .tc main_arg2) = aB V0 :=
  (after_keep _ 10 stepOps42_ok main_arg2 (by decide +kernel) (val42 V0)).trans (val42_main_arg2 V0)
theorem val43_main_arg3 (V0 : Valuation τ sig (Elt Ideal)) : val43 V0 (Proc.devRef .tc main_arg3) = aC V0 :=
  (after_keep _ 10 stepOps42_ok main_arg3 (by decide +kernel) (val42 V0)).trans (val42_main_arg3 V0)
theorem val43_main_v3 (V0 : Valuation τ sig (Elt Ideal)) : val43 V0 (Proc.devRef .tc main_v3) = decay (aA V0) :=
  (after_keep _ 10 stepOps42_ok main_v3 (by decide +kernel) (val42 V0)).trans (val42_main_v3 V0)
theorem val43_h (V0 : Valuation τ sig (Elt Ideal)) : val43 V0 (Proc.devRef .tc main_v855) = hI (aX V0) (aA V0) (aB V0) 42 := by
  refine ((step42_val (val42 V0)).1).trans ?_
  rw [val42_main_arg0 V0, val42_main_v3 V0, val42_main_arg2 V0, val42_h V0]
  exact (hI_at (aX V0) (aA V0) (aB V0) 41 42 (by decide) rfl).symm
theorem val43_y (V0 : Valuation τ sig (Elt Ideal)) : val43 V0 (Proc.devRef .tc main_v863) = yJ (aX V0) (aA V0) (aB V0) (aC V0) 43 := by
  refine ((step42_val (val42 V0)).2).trans ?_
  rw [val42_main_arg0 V0, val42_main_v3 V0, val42_main_arg2 V0, val42_main_arg3 V0, val42_h V0, val42_y V0]
  rw [← hI_at (aX V0) (aA V0) (aB V0) 41 42 (by decide) rfl]
  exact (yJ_at (aX V0) (aA V0) (aB V0) (aC V0) 42 43 (by decide) rfl).symm
/-- The contents after step 43. -/
def val44 (V0 : Valuation τ sig (Elt Ideal)) : Valuation τ sig (Elt Ideal) := after (stepOps43 (F := Ideal)) (val43 V0)
theorem val44_main_arg0 (V0 : Valuation τ sig (Elt Ideal)) : val44 V0 (Proc.devRef .tc main_arg0) = aX V0 :=
  (after_keep _ 10 stepOps43_ok main_arg0 (by decide +kernel) (val43 V0)).trans (val43_main_arg0 V0)
theorem val44_main_arg1 (V0 : Valuation τ sig (Elt Ideal)) : val44 V0 (Proc.devRef .tc main_arg1) = aA V0 :=
  (after_keep _ 10 stepOps43_ok main_arg1 (by decide +kernel) (val43 V0)).trans (val43_main_arg1 V0)
theorem val44_main_arg2 (V0 : Valuation τ sig (Elt Ideal)) : val44 V0 (Proc.devRef .tc main_arg2) = aB V0 :=
  (after_keep _ 10 stepOps43_ok main_arg2 (by decide +kernel) (val43 V0)).trans (val43_main_arg2 V0)
theorem val44_main_arg3 (V0 : Valuation τ sig (Elt Ideal)) : val44 V0 (Proc.devRef .tc main_arg3) = aC V0 :=
  (after_keep _ 10 stepOps43_ok main_arg3 (by decide +kernel) (val43 V0)).trans (val43_main_arg3 V0)
theorem val44_main_v3 (V0 : Valuation τ sig (Elt Ideal)) : val44 V0 (Proc.devRef .tc main_v3) = decay (aA V0) :=
  (after_keep _ 10 stepOps43_ok main_v3 (by decide +kernel) (val43 V0)).trans (val43_main_v3 V0)
theorem val44_h (V0 : Valuation τ sig (Elt Ideal)) : val44 V0 (Proc.devRef .tc main_v875) = hI (aX V0) (aA V0) (aB V0) 43 := by
  refine ((step43_val (val43 V0)).1).trans ?_
  rw [val43_main_arg0 V0, val43_main_v3 V0, val43_main_arg2 V0, val43_h V0]
  exact (hI_at (aX V0) (aA V0) (aB V0) 42 43 (by decide) rfl).symm
theorem val44_y (V0 : Valuation τ sig (Elt Ideal)) : val44 V0 (Proc.devRef .tc main_v883) = yJ (aX V0) (aA V0) (aB V0) (aC V0) 44 := by
  refine ((step43_val (val43 V0)).2).trans ?_
  rw [val43_main_arg0 V0, val43_main_v3 V0, val43_main_arg2 V0, val43_main_arg3 V0, val43_h V0, val43_y V0]
  rw [← hI_at (aX V0) (aA V0) (aB V0) 42 43 (by decide) rfl]
  exact (yJ_at (aX V0) (aA V0) (aB V0) (aC V0) 43 44 (by decide) rfl).symm
/-- The contents after step 44. -/
def val45 (V0 : Valuation τ sig (Elt Ideal)) : Valuation τ sig (Elt Ideal) := after (stepOps44 (F := Ideal)) (val44 V0)
theorem val45_main_arg0 (V0 : Valuation τ sig (Elt Ideal)) : val45 V0 (Proc.devRef .tc main_arg0) = aX V0 :=
  (after_keep _ 10 stepOps44_ok main_arg0 (by decide +kernel) (val44 V0)).trans (val44_main_arg0 V0)
theorem val45_main_arg1 (V0 : Valuation τ sig (Elt Ideal)) : val45 V0 (Proc.devRef .tc main_arg1) = aA V0 :=
  (after_keep _ 10 stepOps44_ok main_arg1 (by decide +kernel) (val44 V0)).trans (val44_main_arg1 V0)
theorem val45_main_arg2 (V0 : Valuation τ sig (Elt Ideal)) : val45 V0 (Proc.devRef .tc main_arg2) = aB V0 :=
  (after_keep _ 10 stepOps44_ok main_arg2 (by decide +kernel) (val44 V0)).trans (val44_main_arg2 V0)
theorem val45_main_arg3 (V0 : Valuation τ sig (Elt Ideal)) : val45 V0 (Proc.devRef .tc main_arg3) = aC V0 :=
  (after_keep _ 10 stepOps44_ok main_arg3 (by decide +kernel) (val44 V0)).trans (val44_main_arg3 V0)
theorem val45_main_v3 (V0 : Valuation τ sig (Elt Ideal)) : val45 V0 (Proc.devRef .tc main_v3) = decay (aA V0) :=
  (after_keep _ 10 stepOps44_ok main_v3 (by decide +kernel) (val44 V0)).trans (val44_main_v3 V0)
theorem val45_h (V0 : Valuation τ sig (Elt Ideal)) : val45 V0 (Proc.devRef .tc main_v895) = hI (aX V0) (aA V0) (aB V0) 44 := by
  refine ((step44_val (val44 V0)).1).trans ?_
  rw [val44_main_arg0 V0, val44_main_v3 V0, val44_main_arg2 V0, val44_h V0]
  exact (hI_at (aX V0) (aA V0) (aB V0) 43 44 (by decide) rfl).symm
theorem val45_y (V0 : Valuation τ sig (Elt Ideal)) : val45 V0 (Proc.devRef .tc main_v903) = yJ (aX V0) (aA V0) (aB V0) (aC V0) 45 := by
  refine ((step44_val (val44 V0)).2).trans ?_
  rw [val44_main_arg0 V0, val44_main_v3 V0, val44_main_arg2 V0, val44_main_arg3 V0, val44_h V0, val44_y V0]
  rw [← hI_at (aX V0) (aA V0) (aB V0) 43 44 (by decide) rfl]
  exact (yJ_at (aX V0) (aA V0) (aB V0) (aC V0) 44 45 (by decide) rfl).symm
/-- The contents after step 45. -/
def val46 (V0 : Valuation τ sig (Elt Ideal)) : Valuation τ sig (Elt Ideal) := after (stepOps45 (F := Ideal)) (val45 V0)
theorem val46_main_arg0 (V0 : Valuation τ sig (Elt Ideal)) : val46 V0 (Proc.devRef .tc main_arg0) = aX V0 :=
  (after_keep _ 10 stepOps45_ok main_arg0 (by decide +kernel) (val45 V0)).trans (val45_main_arg0 V0)
theorem val46_main_arg1 (V0 : Valuation τ sig (Elt Ideal)) : val46 V0 (Proc.devRef .tc main_arg1) = aA V0 :=
  (after_keep _ 10 stepOps45_ok main_arg1 (by decide +kernel) (val45 V0)).trans (val45_main_arg1 V0)
theorem val46_main_arg2 (V0 : Valuation τ sig (Elt Ideal)) : val46 V0 (Proc.devRef .tc main_arg2) = aB V0 :=
  (after_keep _ 10 stepOps45_ok main_arg2 (by decide +kernel) (val45 V0)).trans (val45_main_arg2 V0)
theorem val46_main_arg3 (V0 : Valuation τ sig (Elt Ideal)) : val46 V0 (Proc.devRef .tc main_arg3) = aC V0 :=
  (after_keep _ 10 stepOps45_ok main_arg3 (by decide +kernel) (val45 V0)).trans (val45_main_arg3 V0)
theorem val46_main_v3 (V0 : Valuation τ sig (Elt Ideal)) : val46 V0 (Proc.devRef .tc main_v3) = decay (aA V0) :=
  (after_keep _ 10 stepOps45_ok main_v3 (by decide +kernel) (val45 V0)).trans (val45_main_v3 V0)
theorem val46_h (V0 : Valuation τ sig (Elt Ideal)) : val46 V0 (Proc.devRef .tc main_v915) = hI (aX V0) (aA V0) (aB V0) 45 := by
  refine ((step45_val (val45 V0)).1).trans ?_
  rw [val45_main_arg0 V0, val45_main_v3 V0, val45_main_arg2 V0, val45_h V0]
  exact (hI_at (aX V0) (aA V0) (aB V0) 44 45 (by decide) rfl).symm
theorem val46_y (V0 : Valuation τ sig (Elt Ideal)) : val46 V0 (Proc.devRef .tc main_v923) = yJ (aX V0) (aA V0) (aB V0) (aC V0) 46 := by
  refine ((step45_val (val45 V0)).2).trans ?_
  rw [val45_main_arg0 V0, val45_main_v3 V0, val45_main_arg2 V0, val45_main_arg3 V0, val45_h V0, val45_y V0]
  rw [← hI_at (aX V0) (aA V0) (aB V0) 44 45 (by decide) rfl]
  exact (yJ_at (aX V0) (aA V0) (aB V0) (aC V0) 45 46 (by decide) rfl).symm
/-- The contents after step 46. -/
def val47 (V0 : Valuation τ sig (Elt Ideal)) : Valuation τ sig (Elt Ideal) := after (stepOps46 (F := Ideal)) (val46 V0)
theorem val47_main_arg0 (V0 : Valuation τ sig (Elt Ideal)) : val47 V0 (Proc.devRef .tc main_arg0) = aX V0 :=
  (after_keep _ 10 stepOps46_ok main_arg0 (by decide +kernel) (val46 V0)).trans (val46_main_arg0 V0)
theorem val47_main_arg1 (V0 : Valuation τ sig (Elt Ideal)) : val47 V0 (Proc.devRef .tc main_arg1) = aA V0 :=
  (after_keep _ 10 stepOps46_ok main_arg1 (by decide +kernel) (val46 V0)).trans (val46_main_arg1 V0)
theorem val47_main_arg2 (V0 : Valuation τ sig (Elt Ideal)) : val47 V0 (Proc.devRef .tc main_arg2) = aB V0 :=
  (after_keep _ 10 stepOps46_ok main_arg2 (by decide +kernel) (val46 V0)).trans (val46_main_arg2 V0)
theorem val47_main_arg3 (V0 : Valuation τ sig (Elt Ideal)) : val47 V0 (Proc.devRef .tc main_arg3) = aC V0 :=
  (after_keep _ 10 stepOps46_ok main_arg3 (by decide +kernel) (val46 V0)).trans (val46_main_arg3 V0)
theorem val47_main_v3 (V0 : Valuation τ sig (Elt Ideal)) : val47 V0 (Proc.devRef .tc main_v3) = decay (aA V0) :=
  (after_keep _ 10 stepOps46_ok main_v3 (by decide +kernel) (val46 V0)).trans (val46_main_v3 V0)
theorem val47_h (V0 : Valuation τ sig (Elt Ideal)) : val47 V0 (Proc.devRef .tc main_v935) = hI (aX V0) (aA V0) (aB V0) 46 := by
  refine ((step46_val (val46 V0)).1).trans ?_
  rw [val46_main_arg0 V0, val46_main_v3 V0, val46_main_arg2 V0, val46_h V0]
  exact (hI_at (aX V0) (aA V0) (aB V0) 45 46 (by decide) rfl).symm
theorem val47_y (V0 : Valuation τ sig (Elt Ideal)) : val47 V0 (Proc.devRef .tc main_v943) = yJ (aX V0) (aA V0) (aB V0) (aC V0) 47 := by
  refine ((step46_val (val46 V0)).2).trans ?_
  rw [val46_main_arg0 V0, val46_main_v3 V0, val46_main_arg2 V0, val46_main_arg3 V0, val46_h V0, val46_y V0]
  rw [← hI_at (aX V0) (aA V0) (aB V0) 45 46 (by decide) rfl]
  exact (yJ_at (aX V0) (aA V0) (aB V0) (aC V0) 46 47 (by decide) rfl).symm
/-- The contents after step 47. -/
def val48 (V0 : Valuation τ sig (Elt Ideal)) : Valuation τ sig (Elt Ideal) := after (stepOps47 (F := Ideal)) (val47 V0)
theorem val48_main_arg0 (V0 : Valuation τ sig (Elt Ideal)) : val48 V0 (Proc.devRef .tc main_arg0) = aX V0 :=
  (after_keep _ 10 stepOps47_ok main_arg0 (by decide +kernel) (val47 V0)).trans (val47_main_arg0 V0)
theorem val48_main_arg1 (V0 : Valuation τ sig (Elt Ideal)) : val48 V0 (Proc.devRef .tc main_arg1) = aA V0 :=
  (after_keep _ 10 stepOps47_ok main_arg1 (by decide +kernel) (val47 V0)).trans (val47_main_arg1 V0)
theorem val48_main_arg2 (V0 : Valuation τ sig (Elt Ideal)) : val48 V0 (Proc.devRef .tc main_arg2) = aB V0 :=
  (after_keep _ 10 stepOps47_ok main_arg2 (by decide +kernel) (val47 V0)).trans (val47_main_arg2 V0)
theorem val48_main_arg3 (V0 : Valuation τ sig (Elt Ideal)) : val48 V0 (Proc.devRef .tc main_arg3) = aC V0 :=
  (after_keep _ 10 stepOps47_ok main_arg3 (by decide +kernel) (val47 V0)).trans (val47_main_arg3 V0)
theorem val48_main_v3 (V0 : Valuation τ sig (Elt Ideal)) : val48 V0 (Proc.devRef .tc main_v3) = decay (aA V0) :=
  (after_keep _ 10 stepOps47_ok main_v3 (by decide +kernel) (val47 V0)).trans (val47_main_v3 V0)
theorem val48_h (V0 : Valuation τ sig (Elt Ideal)) : val48 V0 (Proc.devRef .tc main_v955) = hI (aX V0) (aA V0) (aB V0) 47 := by
  refine ((step47_val (val47 V0)).1).trans ?_
  rw [val47_main_arg0 V0, val47_main_v3 V0, val47_main_arg2 V0, val47_h V0]
  exact (hI_at (aX V0) (aA V0) (aB V0) 46 47 (by decide) rfl).symm
theorem val48_y (V0 : Valuation τ sig (Elt Ideal)) : val48 V0 (Proc.devRef .tc main_v963) = yJ (aX V0) (aA V0) (aB V0) (aC V0) 48 := by
  refine ((step47_val (val47 V0)).2).trans ?_
  rw [val47_main_arg0 V0, val47_main_v3 V0, val47_main_arg2 V0, val47_main_arg3 V0, val47_h V0, val47_y V0]
  rw [← hI_at (aX V0) (aA V0) (aB V0) 46 47 (by decide) rfl]
  exact (yJ_at (aX V0) (aA V0) (aB V0) (aC V0) 47 48 (by decide) rfl).symm
/-- The contents after step 48. -/
def val49 (V0 : Valuation τ sig (Elt Ideal)) : Valuation τ sig (Elt Ideal) := after (stepOps48 (F := Ideal)) (val48 V0)
theorem val49_main_arg0 (V0 : Valuation τ sig (Elt Ideal)) : val49 V0 (Proc.devRef .tc main_arg0) = aX V0 :=
  (after_keep _ 10 stepOps48_ok main_arg0 (by decide +kernel) (val48 V0)).trans (val48_main_arg0 V0)
theorem val49_main_arg1 (V0 : Valuation τ sig (Elt Ideal)) : val49 V0 (Proc.devRef .tc main_arg1) = aA V0 :=
  (after_keep _ 10 stepOps48_ok main_arg1 (by decide +kernel) (val48 V0)).trans (val48_main_arg1 V0)
theorem val49_main_arg2 (V0 : Valuation τ sig (Elt Ideal)) : val49 V0 (Proc.devRef .tc main_arg2) = aB V0 :=
  (after_keep _ 10 stepOps48_ok main_arg2 (by decide +kernel) (val48 V0)).trans (val48_main_arg2 V0)
theorem val49_main_arg3 (V0 : Valuation τ sig (Elt Ideal)) : val49 V0 (Proc.devRef .tc main_arg3) = aC V0 :=
  (after_keep _ 10 stepOps48_ok main_arg3 (by decide +kernel) (val48 V0)).trans (val48_main_arg3 V0)
theorem val49_main_v3 (V0 : Valuation τ sig (Elt Ideal)) : val49 V0 (Proc.devRef .tc main_v3) = decay (aA V0) :=
  (after_keep _ 10 stepOps48_ok main_v3 (by decide +kernel) (val48 V0)).trans (val48_main_v3 V0)
theorem val49_h (V0 : Valuation τ sig (Elt Ideal)) : val49 V0 (Proc.devRef .tc main_v975) = hI (aX V0) (aA V0) (aB V0) 48 := by
  refine ((step48_val (val48 V0)).1).trans ?_
  rw [val48_main_arg0 V0, val48_main_v3 V0, val48_main_arg2 V0, val48_h V0]
  exact (hI_at (aX V0) (aA V0) (aB V0) 47 48 (by decide) rfl).symm
theorem val49_y (V0 : Valuation τ sig (Elt Ideal)) : val49 V0 (Proc.devRef .tc main_v983) = yJ (aX V0) (aA V0) (aB V0) (aC V0) 49 := by
  refine ((step48_val (val48 V0)).2).trans ?_
  rw [val48_main_arg0 V0, val48_main_v3 V0, val48_main_arg2 V0, val48_main_arg3 V0, val48_h V0, val48_y V0]
  rw [← hI_at (aX V0) (aA V0) (aB V0) 47 48 (by decide) rfl]
  exact (yJ_at (aX V0) (aA V0) (aB V0) (aC V0) 48 49 (by decide) rfl).symm
/-- The contents after step 49. -/
def val50 (V0 : Valuation τ sig (Elt Ideal)) : Valuation τ sig (Elt Ideal) := after (stepOps49 (F := Ideal)) (val49 V0)
theorem val50_main_arg0 (V0 : Valuation τ sig (Elt Ideal)) : val50 V0 (Proc.devRef .tc main_arg0) = aX V0 :=
  (after_keep _ 10 stepOps49_ok main_arg0 (by decide +kernel) (val49 V0)).trans (val49_main_arg0 V0)
theorem val50_main_arg1 (V0 : Valuation τ sig (Elt Ideal)) : val50 V0 (Proc.devRef .tc main_arg1) = aA V0 :=
  (after_keep _ 10 stepOps49_ok main_arg1 (by decide +kernel) (val49 V0)).trans (val49_main_arg1 V0)
theorem val50_main_arg2 (V0 : Valuation τ sig (Elt Ideal)) : val50 V0 (Proc.devRef .tc main_arg2) = aB V0 :=
  (after_keep _ 10 stepOps49_ok main_arg2 (by decide +kernel) (val49 V0)).trans (val49_main_arg2 V0)
theorem val50_main_arg3 (V0 : Valuation τ sig (Elt Ideal)) : val50 V0 (Proc.devRef .tc main_arg3) = aC V0 :=
  (after_keep _ 10 stepOps49_ok main_arg3 (by decide +kernel) (val49 V0)).trans (val49_main_arg3 V0)
theorem val50_main_v3 (V0 : Valuation τ sig (Elt Ideal)) : val50 V0 (Proc.devRef .tc main_v3) = decay (aA V0) :=
  (after_keep _ 10 stepOps49_ok main_v3 (by decide +kernel) (val49 V0)).trans (val49_main_v3 V0)
theorem val50_h (V0 : Valuation τ sig (Elt Ideal)) : val50 V0 (Proc.devRef .tc main_v995) = hI (aX V0) (aA V0) (aB V0) 49 := by
  refine ((step49_val (val49 V0)).1).trans ?_
  rw [val49_main_arg0 V0, val49_main_v3 V0, val49_main_arg2 V0, val49_h V0]
  exact (hI_at (aX V0) (aA V0) (aB V0) 48 49 (by decide) rfl).symm
theorem val50_y (V0 : Valuation τ sig (Elt Ideal)) : val50 V0 (Proc.devRef .tc main_v1003) = yJ (aX V0) (aA V0) (aB V0) (aC V0) 50 := by
  refine ((step49_val (val49 V0)).2).trans ?_
  rw [val49_main_arg0 V0, val49_main_v3 V0, val49_main_arg2 V0, val49_main_arg3 V0, val49_h V0, val49_y V0]
  rw [← hI_at (aX V0) (aA V0) (aB V0) 48 49 (by decide) rfl]
  exact (yJ_at (aX V0) (aA V0) (aB V0) (aC V0) 49 50 (by decide) rfl).symm
/-- The contents after step 50. -/
def val51 (V0 : Valuation τ sig (Elt Ideal)) : Valuation τ sig (Elt Ideal) := after (stepOps50 (F := Ideal)) (val50 V0)
theorem val51_main_arg0 (V0 : Valuation τ sig (Elt Ideal)) : val51 V0 (Proc.devRef .tc main_arg0) = aX V0 :=
  (after_keep _ 10 stepOps50_ok main_arg0 (by decide +kernel) (val50 V0)).trans (val50_main_arg0 V0)
theorem val51_main_arg1 (V0 : Valuation τ sig (Elt Ideal)) : val51 V0 (Proc.devRef .tc main_arg1) = aA V0 :=
  (after_keep _ 10 stepOps50_ok main_arg1 (by decide +kernel) (val50 V0)).trans (val50_main_arg1 V0)
theorem val51_main_arg2 (V0 : Valuation τ sig (Elt Ideal)) : val51 V0 (Proc.devRef .tc main_arg2) = aB V0 :=
  (after_keep _ 10 stepOps50_ok main_arg2 (by decide +kernel) (val50 V0)).trans (val50_main_arg2 V0)
theorem val51_main_arg3 (V0 : Valuation τ sig (Elt Ideal)) : val51 V0 (Proc.devRef .tc main_arg3) = aC V0 :=
  (after_keep _ 10 stepOps50_ok main_arg3 (by decide +kernel) (val50 V0)).trans (val50_main_arg3 V0)
theorem val51_main_v3 (V0 : Valuation τ sig (Elt Ideal)) : val51 V0 (Proc.devRef .tc main_v3) = decay (aA V0) :=
  (after_keep _ 10 stepOps50_ok main_v3 (by decide +kernel) (val50 V0)).trans (val50_main_v3 V0)
theorem val51_h (V0 : Valuation τ sig (Elt Ideal)) : val51 V0 (Proc.devRef .tc main_v1015) = hI (aX V0) (aA V0) (aB V0) 50 := by
  refine ((step50_val (val50 V0)).1).trans ?_
  rw [val50_main_arg0 V0, val50_main_v3 V0, val50_main_arg2 V0, val50_h V0]
  exact (hI_at (aX V0) (aA V0) (aB V0) 49 50 (by decide) rfl).symm
theorem val51_y (V0 : Valuation τ sig (Elt Ideal)) : val51 V0 (Proc.devRef .tc main_v1023) = yJ (aX V0) (aA V0) (aB V0) (aC V0) 51 := by
  refine ((step50_val (val50 V0)).2).trans ?_
  rw [val50_main_arg0 V0, val50_main_v3 V0, val50_main_arg2 V0, val50_main_arg3 V0, val50_h V0, val50_y V0]
  rw [← hI_at (aX V0) (aA V0) (aB V0) 49 50 (by decide) rfl]
  exact (yJ_at (aX V0) (aA V0) (aB V0) (aC V0) 50 51 (by decide) rfl).symm
/-- The contents after step 51. -/
def val52 (V0 : Valuation τ sig (Elt Ideal)) : Valuation τ sig (Elt Ideal) := after (stepOps51 (F := Ideal)) (val51 V0)
theorem val52_main_arg0 (V0 : Valuation τ sig (Elt Ideal)) : val52 V0 (Proc.devRef .tc main_arg0) = aX V0 :=
  (after_keep _ 10 stepOps51_ok main_arg0 (by decide +kernel) (val51 V0)).trans (val51_main_arg0 V0)
theorem val52_main_arg1 (V0 : Valuation τ sig (Elt Ideal)) : val52 V0 (Proc.devRef .tc main_arg1) = aA V0 :=
  (after_keep _ 10 stepOps51_ok main_arg1 (by decide +kernel) (val51 V0)).trans (val51_main_arg1 V0)
theorem val52_main_arg2 (V0 : Valuation τ sig (Elt Ideal)) : val52 V0 (Proc.devRef .tc main_arg2) = aB V0 :=
  (after_keep _ 10 stepOps51_ok main_arg2 (by decide +kernel) (val51 V0)).trans (val51_main_arg2 V0)
theorem val52_main_arg3 (V0 : Valuation τ sig (Elt Ideal)) : val52 V0 (Proc.devRef .tc main_arg3) = aC V0 :=
  (after_keep _ 10 stepOps51_ok main_arg3 (by decide +kernel) (val51 V0)).trans (val51_main_arg3 V0)
theorem val52_main_v3 (V0 : Valuation τ sig (Elt Ideal)) : val52 V0 (Proc.devRef .tc main_v3) = decay (aA V0) :=
  (after_keep _ 10 stepOps51_ok main_v3 (by decide +kernel) (val51 V0)).trans (val51_main_v3 V0)
theorem val52_h (V0 : Valuation τ sig (Elt Ideal)) : val52 V0 (Proc.devRef .tc main_v1035) = hI (aX V0) (aA V0) (aB V0) 51 := by
  refine ((step51_val (val51 V0)).1).trans ?_
  rw [val51_main_arg0 V0, val51_main_v3 V0, val51_main_arg2 V0, val51_h V0]
  exact (hI_at (aX V0) (aA V0) (aB V0) 50 51 (by decide) rfl).symm
theorem val52_y (V0 : Valuation τ sig (Elt Ideal)) : val52 V0 (Proc.devRef .tc main_v1043) = yJ (aX V0) (aA V0) (aB V0) (aC V0) 52 := by
  refine ((step51_val (val51 V0)).2).trans ?_
  rw [val51_main_arg0 V0, val51_main_v3 V0, val51_main_arg2 V0, val51_main_arg3 V0, val51_h V0, val51_y V0]
  rw [← hI_at (aX V0) (aA V0) (aB V0) 50 51 (by decide) rfl]
  exact (yJ_at (aX V0) (aA V0) (aB V0) (aC V0) 51 52 (by decide) rfl).symm
/-- The contents after step 52. -/
def val53 (V0 : Valuation τ sig (Elt Ideal)) : Valuation τ sig (Elt Ideal) := after (stepOps52 (F := Ideal)) (val52 V0)
theorem val53_main_arg0 (V0 : Valuation τ sig (Elt Ideal)) : val53 V0 (Proc.devRef .tc main_arg0) = aX V0 :=
  (after_keep _ 10 stepOps52_ok main_arg0 (by decide +kernel) (val52 V0)).trans (val52_main_arg0 V0)
theorem val53_main_arg1 (V0 : Valuation τ sig (Elt Ideal)) : val53 V0 (Proc.devRef .tc main_arg1) = aA V0 :=
  (after_keep _ 10 stepOps52_ok main_arg1 (by decide +kernel) (val52 V0)).trans (val52_main_arg1 V0)
theorem val53_main_arg2 (V0 : Valuation τ sig (Elt Ideal)) : val53 V0 (Proc.devRef .tc main_arg2) = aB V0 :=
  (after_keep _ 10 stepOps52_ok main_arg2 (by decide +kernel) (val52 V0)).trans (val52_main_arg2 V0)
theorem val53_main_arg3 (V0 : Valuation τ sig (Elt Ideal)) : val53 V0 (Proc.devRef .tc main_arg3) = aC V0 :=
  (after_keep _ 10 stepOps52_ok main_arg3 (by decide +kernel) (val52 V0)).trans (val52_main_arg3 V0)
theorem val53_main_v3 (V0 : Valuation τ sig (Elt Ideal)) : val53 V0 (Proc.devRef .tc main_v3) = decay (aA V0) :=
  (after_keep _ 10 stepOps52_ok main_v3 (by decide +kernel) (val52 V0)).trans (val52_main_v3 V0)
theorem val53_h (V0 : Valuation τ sig (Elt Ideal)) : val53 V0 (Proc.devRef .tc main_v1055) = hI (aX V0) (aA V0) (aB V0) 52 := by
  refine ((step52_val (val52 V0)).1).trans ?_
  rw [val52_main_arg0 V0, val52_main_v3 V0, val52_main_arg2 V0, val52_h V0]
  exact (hI_at (aX V0) (aA V0) (aB V0) 51 52 (by decide) rfl).symm
theorem val53_y (V0 : Valuation τ sig (Elt Ideal)) : val53 V0 (Proc.devRef .tc main_v1063) = yJ (aX V0) (aA V0) (aB V0) (aC V0) 53 := by
  refine ((step52_val (val52 V0)).2).trans ?_
  rw [val52_main_arg0 V0, val52_main_v3 V0, val52_main_arg2 V0, val52_main_arg3 V0, val52_h V0, val52_y V0]
  rw [← hI_at (aX V0) (aA V0) (aB V0) 51 52 (by decide) rfl]
  exact (yJ_at (aX V0) (aA V0) (aB V0) (aC V0) 52 53 (by decide) rfl).symm
/-- The contents after step 53. -/
def val54 (V0 : Valuation τ sig (Elt Ideal)) : Valuation τ sig (Elt Ideal) := after (stepOps53 (F := Ideal)) (val53 V0)
theorem val54_main_arg0 (V0 : Valuation τ sig (Elt Ideal)) : val54 V0 (Proc.devRef .tc main_arg0) = aX V0 :=
  (after_keep _ 10 stepOps53_ok main_arg0 (by decide +kernel) (val53 V0)).trans (val53_main_arg0 V0)
theorem val54_main_arg1 (V0 : Valuation τ sig (Elt Ideal)) : val54 V0 (Proc.devRef .tc main_arg1) = aA V0 :=
  (after_keep _ 10 stepOps53_ok main_arg1 (by decide +kernel) (val53 V0)).trans (val53_main_arg1 V0)
theorem val54_main_arg2 (V0 : Valuation τ sig (Elt Ideal)) : val54 V0 (Proc.devRef .tc main_arg2) = aB V0 :=
  (after_keep _ 10 stepOps53_ok main_arg2 (by decide +kernel) (val53 V0)).trans (val53_main_arg2 V0)
theorem val54_main_arg3 (V0 : Valuation τ sig (Elt Ideal)) : val54 V0 (Proc.devRef .tc main_arg3) = aC V0 :=
  (after_keep _ 10 stepOps53_ok main_arg3 (by decide +kernel) (val53 V0)).trans (val53_main_arg3 V0)
theorem val54_main_v3 (V0 : Valuation τ sig (Elt Ideal)) : val54 V0 (Proc.devRef .tc main_v3) = decay (aA V0) :=
  (after_keep _ 10 stepOps53_ok main_v3 (by decide +kernel) (val53 V0)).trans (val53_main_v3 V0)
theorem val54_h (V0 : Valuation τ sig (Elt Ideal)) : val54 V0 (Proc.devRef .tc main_v1075) = hI (aX V0) (aA V0) (aB V0) 53 := by
  refine ((step53_val (val53 V0)).1).trans ?_
  rw [val53_main_arg0 V0, val53_main_v3 V0, val53_main_arg2 V0, val53_h V0]
  exact (hI_at (aX V0) (aA V0) (aB V0) 52 53 (by decide) rfl).symm
theorem val54_y (V0 : Valuation τ sig (Elt Ideal)) : val54 V0 (Proc.devRef .tc main_v1083) = yJ (aX V0) (aA V0) (aB V0) (aC V0) 54 := by
  refine ((step53_val (val53 V0)).2).trans ?_
  rw [val53_main_arg0 V0, val53_main_v3 V0, val53_main_arg2 V0, val53_main_arg3 V0, val53_h V0, val53_y V0]
  rw [← hI_at (aX V0) (aA V0) (aB V0) 52 53 (by decide) rfl]
  exact (yJ_at (aX V0) (aA V0) (aB V0) (aC V0) 53 54 (by decide) rfl).symm
/-- The contents after step 54. -/
def val55 (V0 : Valuation τ sig (Elt Ideal)) : Valuation τ sig (Elt Ideal) := after (stepOps54 (F := Ideal)) (val54 V0)
theorem val55_main_arg0 (V0 : Valuation τ sig (Elt Ideal)) : val55 V0 (Proc.devRef .tc main_arg0) = aX V0 :=
  (after_keep _ 10 stepOps54_ok main_arg0 (by decide +kernel) (val54 V0)).trans (val54_main_arg0 V0)
theorem val55_main_arg1 (V0 : Valuation τ sig (Elt Ideal)) : val55 V0 (Proc.devRef .tc main_arg1) = aA V0 :=
  (after_keep _ 10 stepOps54_ok main_arg1 (by decide +kernel) (val54 V0)).trans (val54_main_arg1 V0)
theorem val55_main_arg2 (V0 : Valuation τ sig (Elt Ideal)) : val55 V0 (Proc.devRef .tc main_arg2) = aB V0 :=
  (after_keep _ 10 stepOps54_ok main_arg2 (by decide +kernel) (val54 V0)).trans (val54_main_arg2 V0)
theorem val55_main_arg3 (V0 : Valuation τ sig (Elt Ideal)) : val55 V0 (Proc.devRef .tc main_arg3) = aC V0 :=
  (after_keep _ 10 stepOps54_ok main_arg3 (by decide +kernel) (val54 V0)).trans (val54_main_arg3 V0)
theorem val55_main_v3 (V0 : Valuation τ sig (Elt Ideal)) : val55 V0 (Proc.devRef .tc main_v3) = decay (aA V0) :=
  (after_keep _ 10 stepOps54_ok main_v3 (by decide +kernel) (val54 V0)).trans (val54_main_v3 V0)
theorem val55_h (V0 : Valuation τ sig (Elt Ideal)) : val55 V0 (Proc.devRef .tc main_v1095) = hI (aX V0) (aA V0) (aB V0) 54 := by
  refine ((step54_val (val54 V0)).1).trans ?_
  rw [val54_main_arg0 V0, val54_main_v3 V0, val54_main_arg2 V0, val54_h V0]
  exact (hI_at (aX V0) (aA V0) (aB V0) 53 54 (by decide) rfl).symm
theorem val55_y (V0 : Valuation τ sig (Elt Ideal)) : val55 V0 (Proc.devRef .tc main_v1103) = yJ (aX V0) (aA V0) (aB V0) (aC V0) 55 := by
  refine ((step54_val (val54 V0)).2).trans ?_
  rw [val54_main_arg0 V0, val54_main_v3 V0, val54_main_arg2 V0, val54_main_arg3 V0, val54_h V0, val54_y V0]
  rw [← hI_at (aX V0) (aA V0) (aB V0) 53 54 (by decide) rfl]
  exact (yJ_at (aX V0) (aA V0) (aB V0) (aC V0) 54 55 (by decide) rfl).symm
/-- The contents after step 55. -/
def val56 (V0 : Valuation τ sig (Elt Ideal)) : Valuation τ sig (Elt Ideal) := after (stepOps55 (F := Ideal)) (val55 V0)
theorem val56_main_arg0 (V0 : Valuation τ sig (Elt Ideal)) : val56 V0 (Proc.devRef .tc main_arg0) = aX V0 :=
  (after_keep _ 10 stepOps55_ok main_arg0 (by decide +kernel) (val55 V0)).trans (val55_main_arg0 V0)
theorem val56_main_arg1 (V0 : Valuation τ sig (Elt Ideal)) : val56 V0 (Proc.devRef .tc main_arg1) = aA V0 :=
  (after_keep _ 10 stepOps55_ok main_arg1 (by decide +kernel) (val55 V0)).trans (val55_main_arg1 V0)
theorem val56_main_arg2 (V0 : Valuation τ sig (Elt Ideal)) : val56 V0 (Proc.devRef .tc main_arg2) = aB V0 :=
  (after_keep _ 10 stepOps55_ok main_arg2 (by decide +kernel) (val55 V0)).trans (val55_main_arg2 V0)
theorem val56_main_arg3 (V0 : Valuation τ sig (Elt Ideal)) : val56 V0 (Proc.devRef .tc main_arg3) = aC V0 :=
  (after_keep _ 10 stepOps55_ok main_arg3 (by decide +kernel) (val55 V0)).trans (val55_main_arg3 V0)
theorem val56_main_v3 (V0 : Valuation τ sig (Elt Ideal)) : val56 V0 (Proc.devRef .tc main_v3) = decay (aA V0) :=
  (after_keep _ 10 stepOps55_ok main_v3 (by decide +kernel) (val55 V0)).trans (val55_main_v3 V0)
theorem val56_h (V0 : Valuation τ sig (Elt Ideal)) : val56 V0 (Proc.devRef .tc main_v1115) = hI (aX V0) (aA V0) (aB V0) 55 := by
  refine ((step55_val (val55 V0)).1).trans ?_
  rw [val55_main_arg0 V0, val55_main_v3 V0, val55_main_arg2 V0, val55_h V0]
  exact (hI_at (aX V0) (aA V0) (aB V0) 54 55 (by decide) rfl).symm
theorem val56_y (V0 : Valuation τ sig (Elt Ideal)) : val56 V0 (Proc.devRef .tc main_v1123) = yJ (aX V0) (aA V0) (aB V0) (aC V0) 56 := by
  refine ((step55_val (val55 V0)).2).trans ?_
  rw [val55_main_arg0 V0, val55_main_v3 V0, val55_main_arg2 V0, val55_main_arg3 V0, val55_h V0, val55_y V0]
  rw [← hI_at (aX V0) (aA V0) (aB V0) 54 55 (by decide) rfl]
  exact (yJ_at (aX V0) (aA V0) (aB V0) (aC V0) 55 56 (by decide) rfl).symm
/-- The contents after step 56. -/
def val57 (V0 : Valuation τ sig (Elt Ideal)) : Valuation τ sig (Elt Ideal) := after (stepOps56 (F := Ideal)) (val56 V0)
theorem val57_main_arg0 (V0 : Valuation τ sig (Elt Ideal)) : val57 V0 (Proc.devRef .tc main_arg0) = aX V0 :=
  (after_keep _ 10 stepOps56_ok main_arg0 (by decide +kernel) (val56 V0)).trans (val56_main_arg0 V0)
theorem val57_main_arg1 (V0 : Valuation τ sig (Elt Ideal)) : val57 V0 (Proc.devRef .tc main_arg1) = aA V0 :=
  (after_keep _ 10 stepOps56_ok main_arg1 (by decide +kernel) (val56 V0)).trans (val56_main_arg1 V0)
theorem val57_main_arg2 (V0 : Valuation τ sig (Elt Ideal)) : val57 V0 (Proc.devRef .tc main_arg2) = aB V0 :=
  (after_keep _ 10 stepOps56_ok main_arg2 (by decide +kernel) (val56 V0)).trans (val56_main_arg2 V0)
theorem val57_main_arg3 (V0 : Valuation τ sig (Elt Ideal)) : val57 V0 (Proc.devRef .tc main_arg3) = aC V0 :=
  (after_keep _ 10 stepOps56_ok main_arg3 (by decide +kernel) (val56 V0)).trans (val56_main_arg3 V0)
theorem val57_main_v3 (V0 : Valuation τ sig (Elt Ideal)) : val57 V0 (Proc.devRef .tc main_v3) = decay (aA V0) :=
  (after_keep _ 10 stepOps56_ok main_v3 (by decide +kernel) (val56 V0)).trans (val56_main_v3 V0)
theorem val57_h (V0 : Valuation τ sig (Elt Ideal)) : val57 V0 (Proc.devRef .tc main_v1135) = hI (aX V0) (aA V0) (aB V0) 56 := by
  refine ((step56_val (val56 V0)).1).trans ?_
  rw [val56_main_arg0 V0, val56_main_v3 V0, val56_main_arg2 V0, val56_h V0]
  exact (hI_at (aX V0) (aA V0) (aB V0) 55 56 (by decide) rfl).symm
theorem val57_y (V0 : Valuation τ sig (Elt Ideal)) : val57 V0 (Proc.devRef .tc main_v1143) = yJ (aX V0) (aA V0) (aB V0) (aC V0) 57 := by
  refine ((step56_val (val56 V0)).2).trans ?_
  rw [val56_main_arg0 V0, val56_main_v3 V0, val56_main_arg2 V0, val56_main_arg3 V0, val56_h V0, val56_y V0]
  rw [← hI_at (aX V0) (aA V0) (aB V0) 55 56 (by decide) rfl]
  exact (yJ_at (aX V0) (aA V0) (aB V0) (aC V0) 56 57 (by decide) rfl).symm
/-- The contents after step 57. -/
def val58 (V0 : Valuation τ sig (Elt Ideal)) : Valuation τ sig (Elt Ideal) := after (stepOps57 (F := Ideal)) (val57 V0)
theorem val58_main_arg0 (V0 : Valuation τ sig (Elt Ideal)) : val58 V0 (Proc.devRef .tc main_arg0) = aX V0 :=
  (after_keep _ 10 stepOps57_ok main_arg0 (by decide +kernel) (val57 V0)).trans (val57_main_arg0 V0)
theorem val58_main_arg1 (V0 : Valuation τ sig (Elt Ideal)) : val58 V0 (Proc.devRef .tc main_arg1) = aA V0 :=
  (after_keep _ 10 stepOps57_ok main_arg1 (by decide +kernel) (val57 V0)).trans (val57_main_arg1 V0)
theorem val58_main_arg2 (V0 : Valuation τ sig (Elt Ideal)) : val58 V0 (Proc.devRef .tc main_arg2) = aB V0 :=
  (after_keep _ 10 stepOps57_ok main_arg2 (by decide +kernel) (val57 V0)).trans (val57_main_arg2 V0)
theorem val58_main_arg3 (V0 : Valuation τ sig (Elt Ideal)) : val58 V0 (Proc.devRef .tc main_arg3) = aC V0 :=
  (after_keep _ 10 stepOps57_ok main_arg3 (by decide +kernel) (val57 V0)).trans (val57_main_arg3 V0)
theorem val58_main_v3 (V0 : Valuation τ sig (Elt Ideal)) : val58 V0 (Proc.devRef .tc main_v3) = decay (aA V0) :=
  (after_keep _ 10 stepOps57_ok main_v3 (by decide +kernel) (val57 V0)).trans (val57_main_v3 V0)
theorem val58_h (V0 : Valuation τ sig (Elt Ideal)) : val58 V0 (Proc.devRef .tc main_v1155) = hI (aX V0) (aA V0) (aB V0) 57 := by
  refine ((step57_val (val57 V0)).1).trans ?_
  rw [val57_main_arg0 V0, val57_main_v3 V0, val57_main_arg2 V0, val57_h V0]
  exact (hI_at (aX V0) (aA V0) (aB V0) 56 57 (by decide) rfl).symm
theorem val58_y (V0 : Valuation τ sig (Elt Ideal)) : val58 V0 (Proc.devRef .tc main_v1163) = yJ (aX V0) (aA V0) (aB V0) (aC V0) 58 := by
  refine ((step57_val (val57 V0)).2).trans ?_
  rw [val57_main_arg0 V0, val57_main_v3 V0, val57_main_arg2 V0, val57_main_arg3 V0, val57_h V0, val57_y V0]
  rw [← hI_at (aX V0) (aA V0) (aB V0) 56 57 (by decide) rfl]
  exact (yJ_at (aX V0) (aA V0) (aB V0) (aC V0) 57 58 (by decide) rfl).symm
/-- The contents after step 58. -/
def val59 (V0 : Valuation τ sig (Elt Ideal)) : Valuation τ sig (Elt Ideal) := after (stepOps58 (F := Ideal)) (val58 V0)
theorem val59_main_arg0 (V0 : Valuation τ sig (Elt Ideal)) : val59 V0 (Proc.devRef .tc main_arg0) = aX V0 :=
  (after_keep _ 10 stepOps58_ok main_arg0 (by decide +kernel) (val58 V0)).trans (val58_main_arg0 V0)
theorem val59_main_arg1 (V0 : Valuation τ sig (Elt Ideal)) : val59 V0 (Proc.devRef .tc main_arg1) = aA V0 :=
  (after_keep _ 10 stepOps58_ok main_arg1 (by decide +kernel) (val58 V0)).trans (val58_main_arg1 V0)
theorem val59_main_arg2 (V0 : Valuation τ sig (Elt Ideal)) : val59 V0 (Proc.devRef .tc main_arg2) = aB V0 :=
  (after_keep _ 10 stepOps58_ok main_arg2 (by decide +kernel) (val58 V0)).trans (val58_main_arg2 V0)
theorem val59_main_arg3 (V0 : Valuation τ sig (Elt Ideal)) : val59 V0 (Proc.devRef .tc main_arg3) = aC V0 :=
  (after_keep _ 10 stepOps58_ok main_arg3 (by decide +kernel) (val58 V0)).trans (val58_main_arg3 V0)
theorem val59_main_v3 (V0 : Valuation τ sig (Elt Ideal)) : val59 V0 (Proc.devRef .tc main_v3) = decay (aA V0) :=
  (after_keep _ 10 stepOps58_ok main_v3 (by decide +kernel) (val58 V0)).trans (val58_main_v3 V0)
theorem val59_h (V0 : Valuation τ sig (Elt Ideal)) : val59 V0 (Proc.devRef .tc main_v1175) = hI (aX V0) (aA V0) (aB V0) 58 := by
  refine ((step58_val (val58 V0)).1).trans ?_
  rw [val58_main_arg0 V0, val58_main_v3 V0, val58_main_arg2 V0, val58_h V0]
  exact (hI_at (aX V0) (aA V0) (aB V0) 57 58 (by decide) rfl).symm
theorem val59_y (V0 : Valuation τ sig (Elt Ideal)) : val59 V0 (Proc.devRef .tc main_v1183) = yJ (aX V0) (aA V0) (aB V0) (aC V0) 59 := by
  refine ((step58_val (val58 V0)).2).trans ?_
  rw [val58_main_arg0 V0, val58_main_v3 V0, val58_main_arg2 V0, val58_main_arg3 V0, val58_h V0, val58_y V0]
  rw [← hI_at (aX V0) (aA V0) (aB V0) 57 58 (by decide) rfl]
  exact (yJ_at (aX V0) (aA V0) (aB V0) (aC V0) 58 59 (by decide) rfl).symm
/-- The contents after step 59. -/
def val60 (V0 : Valuation τ sig (Elt Ideal)) : Valuation τ sig (Elt Ideal) := after (stepOps59 (F := Ideal)) (val59 V0)
theorem val60_main_arg0 (V0 : Valuation τ sig (Elt Ideal)) : val60 V0 (Proc.devRef .tc main_arg0) = aX V0 :=
  (after_keep _ 10 stepOps59_ok main_arg0 (by decide +kernel) (val59 V0)).trans (val59_main_arg0 V0)
theorem val60_main_arg1 (V0 : Valuation τ sig (Elt Ideal)) : val60 V0 (Proc.devRef .tc main_arg1) = aA V0 :=
  (after_keep _ 10 stepOps59_ok main_arg1 (by decide +kernel) (val59 V0)).trans (val59_main_arg1 V0)
theorem val60_main_arg2 (V0 : Valuation τ sig (Elt Ideal)) : val60 V0 (Proc.devRef .tc main_arg2) = aB V0 :=
  (after_keep _ 10 stepOps59_ok main_arg2 (by decide +kernel) (val59 V0)).trans (val59_main_arg2 V0)
theorem val60_main_arg3 (V0 : Valuation τ sig (Elt Ideal)) : val60 V0 (Proc.devRef .tc main_arg3) = aC V0 :=
  (after_keep _ 10 stepOps59_ok main_arg3 (by decide +kernel) (val59 V0)).trans (val59_main_arg3 V0)
theorem val60_main_v3 (V0 : Valuation τ sig (Elt Ideal)) : val60 V0 (Proc.devRef .tc main_v3) = decay (aA V0) :=
  (after_keep _ 10 stepOps59_ok main_v3 (by decide +kernel) (val59 V0)).trans (val59_main_v3 V0)
theorem val60_h (V0 : Valuation τ sig (Elt Ideal)) : val60 V0 (Proc.devRef .tc main_v1195) = hI (aX V0) (aA V0) (aB V0) 59 := by
  refine ((step59_val (val59 V0)).1).trans ?_
  rw [val59_main_arg0 V0, val59_main_v3 V0, val59_main_arg2 V0, val59_h V0]
  exact (hI_at (aX V0) (aA V0) (aB V0) 58 59 (by decide) rfl).symm
theorem val60_y (V0 : Valuation τ sig (Elt Ideal)) : val60 V0 (Proc.devRef .tc main_v1203) = yJ (aX V0) (aA V0) (aB V0) (aC V0) 60 := by
  refine ((step59_val (val59 V0)).2).trans ?_
  rw [val59_main_arg0 V0, val59_main_v3 V0, val59_main_arg2 V0, val59_main_arg3 V0, val59_h V0, val59_y V0]
  rw [← hI_at (aX V0) (aA V0) (aB V0) 58 59 (by decide) rfl]
  exact (yJ_at (aX V0) (aA V0) (aB V0) (aC V0) 59 60 (by decide) rfl).symm
/-- The contents after step 60. -/
def val61 (V0 : Valuation τ sig (Elt Ideal)) : Valuation τ sig (Elt Ideal) := after (stepOps60 (F := Ideal)) (val60 V0)
theorem val61_main_arg0 (V0 : Valuation τ sig (Elt Ideal)) : val61 V0 (Proc.devRef .tc main_arg0) = aX V0 :=
  (after_keep _ 10 stepOps60_ok main_arg0 (by decide +kernel) (val60 V0)).trans (val60_main_arg0 V0)
theorem val61_main_arg1 (V0 : Valuation τ sig (Elt Ideal)) : val61 V0 (Proc.devRef .tc main_arg1) = aA V0 :=
  (after_keep _ 10 stepOps60_ok main_arg1 (by decide +kernel) (val60 V0)).trans (val60_main_arg1 V0)
theorem val61_main_arg2 (V0 : Valuation τ sig (Elt Ideal)) : val61 V0 (Proc.devRef .tc main_arg2) = aB V0 :=
  (after_keep _ 10 stepOps60_ok main_arg2 (by decide +kernel) (val60 V0)).trans (val60_main_arg2 V0)
theorem val61_main_arg3 (V0 : Valuation τ sig (Elt Ideal)) : val61 V0 (Proc.devRef .tc main_arg3) = aC V0 :=
  (after_keep _ 10 stepOps60_ok main_arg3 (by decide +kernel) (val60 V0)).trans (val60_main_arg3 V0)
theorem val61_main_v3 (V0 : Valuation τ sig (Elt Ideal)) : val61 V0 (Proc.devRef .tc main_v3) = decay (aA V0) :=
  (after_keep _ 10 stepOps60_ok main_v3 (by decide +kernel) (val60 V0)).trans (val60_main_v3 V0)
theorem val61_h (V0 : Valuation τ sig (Elt Ideal)) : val61 V0 (Proc.devRef .tc main_v1215) = hI (aX V0) (aA V0) (aB V0) 60 := by
  refine ((step60_val (val60 V0)).1).trans ?_
  rw [val60_main_arg0 V0, val60_main_v3 V0, val60_main_arg2 V0, val60_h V0]
  exact (hI_at (aX V0) (aA V0) (aB V0) 59 60 (by decide) rfl).symm
theorem val61_y (V0 : Valuation τ sig (Elt Ideal)) : val61 V0 (Proc.devRef .tc main_v1223) = yJ (aX V0) (aA V0) (aB V0) (aC V0) 61 := by
  refine ((step60_val (val60 V0)).2).trans ?_
  rw [val60_main_arg0 V0, val60_main_v3 V0, val60_main_arg2 V0, val60_main_arg3 V0, val60_h V0, val60_y V0]
  rw [← hI_at (aX V0) (aA V0) (aB V0) 59 60 (by decide) rfl]
  exact (yJ_at (aX V0) (aA V0) (aB V0) (aC V0) 60 61 (by decide) rfl).symm
/-- The contents after step 61. -/
def val62 (V0 : Valuation τ sig (Elt Ideal)) : Valuation τ sig (Elt Ideal) := after (stepOps61 (F := Ideal)) (val61 V0)
theorem val62_main_arg0 (V0 : Valuation τ sig (Elt Ideal)) : val62 V0 (Proc.devRef .tc main_arg0) = aX V0 :=
  (after_keep _ 10 stepOps61_ok main_arg0 (by decide +kernel) (val61 V0)).trans (val61_main_arg0 V0)
theorem val62_main_arg1 (V0 : Valuation τ sig (Elt Ideal)) : val62 V0 (Proc.devRef .tc main_arg1) = aA V0 :=
  (after_keep _ 10 stepOps61_ok main_arg1 (by decide +kernel) (val61 V0)).trans (val61_main_arg1 V0)
theorem val62_main_arg2 (V0 : Valuation τ sig (Elt Ideal)) : val62 V0 (Proc.devRef .tc main_arg2) = aB V0 :=
  (after_keep _ 10 stepOps61_ok main_arg2 (by decide +kernel) (val61 V0)).trans (val61_main_arg2 V0)
theorem val62_main_arg3 (V0 : Valuation τ sig (Elt Ideal)) : val62 V0 (Proc.devRef .tc main_arg3) = aC V0 :=
  (after_keep _ 10 stepOps61_ok main_arg3 (by decide +kernel) (val61 V0)).trans (val61_main_arg3 V0)
theorem val62_main_v3 (V0 : Valuation τ sig (Elt Ideal)) : val62 V0 (Proc.devRef .tc main_v3) = decay (aA V0) :=
  (after_keep _ 10 stepOps61_ok main_v3 (by decide +kernel) (val61 V0)).trans (val61_main_v3 V0)
theorem val62_h (V0 : Valuation τ sig (Elt Ideal)) : val62 V0 (Proc.devRef .tc main_v1235) = hI (aX V0) (aA V0) (aB V0) 61 := by
  refine ((step61_val (val61 V0)).1).trans ?_
  rw [val61_main_arg0 V0, val61_main_v3 V0, val61_main_arg2 V0, val61_h V0]
  exact (hI_at (aX V0) (aA V0) (aB V0) 60 61 (by decide) rfl).symm
theorem val62_y (V0 : Valuation τ sig (Elt Ideal)) : val62 V0 (Proc.devRef .tc main_v1243) = yJ (aX V0) (aA V0) (aB V0) (aC V0) 62 := by
  refine ((step61_val (val61 V0)).2).trans ?_
  rw [val61_main_arg0 V0, val61_main_v3 V0, val61_main_arg2 V0, val61_main_arg3 V0, val61_h V0, val61_y V0]
  rw [← hI_at (aX V0) (aA V0) (aB V0) 60 61 (by decide) rfl]
  exact (yJ_at (aX V0) (aA V0) (aB V0) (aC V0) 61 62 (by decide) rfl).symm
/-- The contents after step 62. -/
def val63 (V0 : Valuation τ sig (Elt Ideal)) : Valuation τ sig (Elt Ideal) := after (stepOps62 (F := Ideal)) (val62 V0)
theorem val63_main_arg0 (V0 : Valuation τ sig (Elt Ideal)) : val63 V0 (Proc.devRef .tc main_arg0) = aX V0 :=
  (after_keep _ 10 stepOps62_ok main_arg0 (by decide +kernel) (val62 V0)).trans (val62_main_arg0 V0)
theorem val63_main_arg1 (V0 : Valuation τ sig (Elt Ideal)) : val63 V0 (Proc.devRef .tc main_arg1) = aA V0 :=
  (after_keep _ 10 stepOps62_ok main_arg1 (by decide +kernel) (val62 V0)).trans (val62_main_arg1 V0)
theorem val63_main_arg2 (V0 : Valuation τ sig (Elt Ideal)) : val63 V0 (Proc.devRef .tc main_arg2) = aB V0 :=
  (after_keep _ 10 stepOps62_ok main_arg2 (by decide +kernel) (val62 V0)).trans (val62_main_arg2 V0)
theorem val63_main_arg3 (V0 : Valuation τ sig (Elt Ideal)) : val63 V0 (Proc.devRef .tc main_arg3) = aC V0 :=
  (after_keep _ 10 stepOps62_ok main_arg3 (by decide +kernel) (val62 V0)).trans (val62_main_arg3 V0)
theorem val63_main_v3 (V0 : Valuation τ sig (Elt Ideal)) : val63 V0 (Proc.devRef .tc main_v3) = decay (aA V0) :=
  (after_keep _ 10 stepOps62_ok main_v3 (by decide +kernel) (val62 V0)).trans (val62_main_v3 V0)
theorem val63_h (V0 : Valuation τ sig (Elt Ideal)) : val63 V0 (Proc.devRef .tc main_v1255) = hI (aX V0) (aA V0) (aB V0) 62 := by
  refine ((step62_val (val62 V0)).1).trans ?_
  rw [val62_main_arg0 V0, val62_main_v3 V0, val62_main_arg2 V0, val62_h V0]
  exact (hI_at (aX V0) (aA V0) (aB V0) 61 62 (by decide) rfl).symm
theorem val63_y (V0 : Valuation τ sig (Elt Ideal)) : val63 V0 (Proc.devRef .tc main_v1263) = yJ (aX V0) (aA V0) (aB V0) (aC V0) 63 := by
  refine ((step62_val (val62 V0)).2).trans ?_
  rw [val62_main_arg0 V0, val62_main_v3 V0, val62_main_arg2 V0, val62_main_arg3 V0, val62_h V0, val62_y V0]
  rw [← hI_at (aX V0) (aA V0) (aB V0) 61 62 (by decide) rfl]
  exact (yJ_at (aX V0) (aA V0) (aB V0) (aC V0) 62 63 (by decide) rfl).symm
/-- The contents after step 63. -/
def val64 (V0 : Valuation τ sig (Elt Ideal)) : Valuation τ sig (Elt Ideal) := after (stepOps63 (F := Ideal)) (val63 V0)
theorem val64_main_arg0 (V0 : Valuation τ sig (Elt Ideal)) : val64 V0 (Proc.devRef .tc main_arg0) = aX V0 :=
  (after_keep _ 10 stepOps63_ok main_arg0 (by decide +kernel) (val63 V0)).trans (val63_main_arg0 V0)
theorem val64_main_arg1 (V0 : Valuation τ sig (Elt Ideal)) : val64 V0 (Proc.devRef .tc main_arg1) = aA V0 :=
  (after_keep _ 10 stepOps63_ok main_arg1 (by decide +kernel) (val63 V0)).trans (val63_main_arg1 V0)
theorem val64_main_arg2 (V0 : Valuation τ sig (Elt Ideal)) : val64 V0 (Proc.devRef .tc main_arg2) = aB V0 :=
  (after_keep _ 10 stepOps63_ok main_arg2 (by decide +kernel) (val63 V0)).trans (val63_main_arg2 V0)
theorem val64_main_arg3 (V0 : Valuation τ sig (Elt Ideal)) : val64 V0 (Proc.devRef .tc main_arg3) = aC V0 :=
  (after_keep _ 10 stepOps63_ok main_arg3 (by decide +kernel) (val63 V0)).trans (val63_main_arg3 V0)
theorem val64_main_v3 (V0 : Valuation τ sig (Elt Ideal)) : val64 V0 (Proc.devRef .tc main_v3) = decay (aA V0) :=
  (after_keep _ 10 stepOps63_ok main_v3 (by decide +kernel) (val63 V0)).trans (val63_main_v3 V0)
theorem val64_h (V0 : Valuation τ sig (Elt Ideal)) : val64 V0 (Proc.devRef .tc main_v1275) = hI (aX V0) (aA V0) (aB V0) 63 := by
  refine ((step63_val (val63 V0)).1).trans ?_
  rw [val63_main_arg0 V0, val63_main_v3 V0, val63_main_arg2 V0, val63_h V0]
  exact (hI_at (aX V0) (aA V0) (aB V0) 62 63 (by decide) rfl).symm
theorem val64_y (V0 : Valuation τ sig (Elt Ideal)) : val64 V0 (Proc.devRef .tc main_v1283) = yJ (aX V0) (aA V0) (aB V0) (aC V0) 64 := by
  refine ((step63_val (val63 V0)).2).trans ?_
  rw [val63_main_arg0 V0, val63_main_v3 V0, val63_main_arg2 V0, val63_main_arg3 V0, val63_h V0, val63_y V0]
  rw [← hI_at (aX V0) (aA V0) (aB V0) 62 63 (by decide) rfl]
  exact (yJ_at (aX V0) (aA V0) (aB V0) (aC V0) 63 64 (by decide) rfl).symm
/-- The contents after step 64. -/
def val65 (V0 : Valuation τ sig (Elt Ideal)) : Valuation τ sig (Elt Ideal) := after (stepOps64 (F := Ideal)) (val64 V0)
theorem val65_main_arg0 (V0 : Valuation τ sig (Elt Ideal)) : val65 V0 (Proc.devRef .tc main_arg0) = aX V0 :=
  (after_keep _ 10 stepOps64_ok main_arg0 (by decide +kernel) (val64 V0)).trans (val64_main_arg0 V0)
theorem val65_main_arg1 (V0 : Valuation τ sig (Elt Ideal)) : val65 V0 (Proc.devRef .tc main_arg1) = aA V0 :=
  (after_keep _ 10 stepOps64_ok main_arg1 (by decide +kernel) (val64 V0)).trans (val64_main_arg1 V0)
theorem val65_main_arg2 (V0 : Valuation τ sig (Elt Ideal)) : val65 V0 (Proc.devRef .tc main_arg2) = aB V0 :=
  (after_keep _ 10 stepOps64_ok main_arg2 (by decide +kernel) (val64 V0)).trans (val64_main_arg2 V0)
theorem val65_main_arg3 (V0 : Valuation τ sig (Elt Ideal)) : val65 V0 (Proc.devRef .tc main_arg3) = aC V0 :=
  (after_keep _ 10 stepOps64_ok main_arg3 (by decide +kernel) (val64 V0)).trans (val64_main_arg3 V0)
theorem val65_main_v3 (V0 : Valuation τ sig (Elt Ideal)) : val65 V0 (Proc.devRef .tc main_v3) = decay (aA V0) :=
  (after_keep _ 10 stepOps64_ok main_v3 (by decide +kernel) (val64 V0)).trans (val64_main_v3 V0)
theorem val65_h (V0 : Valuation τ sig (Elt Ideal)) : val65 V0 (Proc.devRef .tc main_v1295) = hI (aX V0) (aA V0) (aB V0) 64 := by
  refine ((step64_val (val64 V0)).1).trans ?_
  rw [val64_main_arg0 V0, val64_main_v3 V0, val64_main_arg2 V0, val64_h V0]
  exact (hI_at (aX V0) (aA V0) (aB V0) 63 64 (by decide) rfl).symm
theorem val65_y (V0 : Valuation τ sig (Elt Ideal)) : val65 V0 (Proc.devRef .tc main_v1303) = yJ (aX V0) (aA V0) (aB V0) (aC V0) 65 := by
  refine ((step64_val (val64 V0)).2).trans ?_
  rw [val64_main_arg0 V0, val64_main_v3 V0, val64_main_arg2 V0, val64_main_arg3 V0, val64_h V0, val64_y V0]
  rw [← hI_at (aX V0) (aA V0) (aB V0) 63 64 (by decide) rfl]
  exact (yJ_at (aX V0) (aA V0) (aB V0) (aC V0) 64 65 (by decide) rfl).symm
/-- The contents after step 65. -/
def val66 (V0 : Valuation τ sig (Elt Ideal)) : Valuation τ sig (Elt Ideal) := after (stepOps65 (F := Ideal)) (val65 V0)
theorem val66_main_arg0 (V0 : Valuation τ sig (Elt Ideal)) : val66 V0 (Proc.devRef .tc main_arg0) = aX V0 :=
  (after_keep _ 10 stepOps65_ok main_arg0 (by decide +kernel) (val65 V0)).trans (val65_main_arg0 V0)
theorem val66_main_arg1 (V0 : Valuation τ sig (Elt Ideal)) : val66 V0 (Proc.devRef .tc main_arg1) = aA V0 :=
  (after_keep _ 10 stepOps65_ok main_arg1 (by decide +kernel) (val65 V0)).trans (val65_main_arg1 V0)
theorem val66_main_arg2 (V0 : Valuation τ sig (Elt Ideal)) : val66 V0 (Proc.devRef .tc main_arg2) = aB V0 :=
  (after_keep _ 10 stepOps65_ok main_arg2 (by decide +kernel) (val65 V0)).trans (val65_main_arg2 V0)
theorem val66_main_arg3 (V0 : Valuation τ sig (Elt Ideal)) : val66 V0 (Proc.devRef .tc main_arg3) = aC V0 :=
  (after_keep _ 10 stepOps65_ok main_arg3 (by decide +kernel) (val65 V0)).trans (val65_main_arg3 V0)
theorem val66_main_v3 (V0 : Valuation τ sig (Elt Ideal)) : val66 V0 (Proc.devRef .tc main_v3) = decay (aA V0) :=
  (after_keep _ 10 stepOps65_ok main_v3 (by decide +kernel) (val65 V0)).trans (val65_main_v3 V0)
theorem val66_h (V0 : Valuation τ sig (Elt Ideal)) : val66 V0 (Proc.devRef .tc main_v1315) = hI (aX V0) (aA V0) (aB V0) 65 := by
  refine ((step65_val (val65 V0)).1).trans ?_
  rw [val65_main_arg0 V0, val65_main_v3 V0, val65_main_arg2 V0, val65_h V0]
  exact (hI_at (aX V0) (aA V0) (aB V0) 64 65 (by decide) rfl).symm
theorem val66_y (V0 : Valuation τ sig (Elt Ideal)) : val66 V0 (Proc.devRef .tc main_v1323) = yJ (aX V0) (aA V0) (aB V0) (aC V0) 66 := by
  refine ((step65_val (val65 V0)).2).trans ?_
  rw [val65_main_arg0 V0, val65_main_v3 V0, val65_main_arg2 V0, val65_main_arg3 V0, val65_h V0, val65_y V0]
  rw [← hI_at (aX V0) (aA V0) (aB V0) 64 65 (by decide) rfl]
  exact (yJ_at (aX V0) (aA V0) (aB V0) (aC V0) 65 66 (by decide) rfl).symm
/-- The contents after step 66. -/
def val67 (V0 : Valuation τ sig (Elt Ideal)) : Valuation τ sig (Elt Ideal) := after (stepOps66 (F := Ideal)) (val66 V0)
theorem val67_main_arg0 (V0 : Valuation τ sig (Elt Ideal)) : val67 V0 (Proc.devRef .tc main_arg0) = aX V0 :=
  (after_keep _ 10 stepOps66_ok main_arg0 (by decide +kernel) (val66 V0)).trans (val66_main_arg0 V0)
theorem val67_main_arg1 (V0 : Valuation τ sig (Elt Ideal)) : val67 V0 (Proc.devRef .tc main_arg1) = aA V0 :=
  (after_keep _ 10 stepOps66_ok main_arg1 (by decide +kernel) (val66 V0)).trans (val66_main_arg1 V0)
theorem val67_main_arg2 (V0 : Valuation τ sig (Elt Ideal)) : val67 V0 (Proc.devRef .tc main_arg2) = aB V0 :=
  (after_keep _ 10 stepOps66_ok main_arg2 (by decide +kernel) (val66 V0)).trans (val66_main_arg2 V0)
theorem val67_main_arg3 (V0 : Valuation τ sig (Elt Ideal)) : val67 V0 (Proc.devRef .tc main_arg3) = aC V0 :=
  (after_keep _ 10 stepOps66_ok main_arg3 (by decide +kernel) (val66 V0)).trans (val66_main_arg3 V0)
theorem val67_main_v3 (V0 : Valuation τ sig (Elt Ideal)) : val67 V0 (Proc.devRef .tc main_v3) = decay (aA V0) :=
  (after_keep _ 10 stepOps66_ok main_v3 (by decide +kernel) (val66 V0)).trans (val66_main_v3 V0)
theorem val67_h (V0 : Valuation τ sig (Elt Ideal)) : val67 V0 (Proc.devRef .tc main_v1335) = hI (aX V0) (aA V0) (aB V0) 66 := by
  refine ((step66_val (val66 V0)).1).trans ?_
  rw [val66_main_arg0 V0, val66_main_v3 V0, val66_main_arg2 V0, val66_h V0]
  exact (hI_at (aX V0) (aA V0) (aB V0) 65 66 (by decide) rfl).symm
theorem val67_y (V0 : Valuation τ sig (Elt Ideal)) : val67 V0 (Proc.devRef .tc main_v1343) = yJ (aX V0) (aA V0) (aB V0) (aC V0) 67 := by
  refine ((step66_val (val66 V0)).2).trans ?_
  rw [val66_main_arg0 V0, val66_main_v3 V0, val66_main_arg2 V0, val66_main_arg3 V0, val66_h V0, val66_y V0]
  rw [← hI_at (aX V0) (aA V0) (aB V0) 65 66 (by decide) rfl]
  exact (yJ_at (aX V0) (aA V0) (aB V0) (aC V0) 66 67 (by decide) rfl).symm
/-- The contents after step 67. -/
def val68 (V0 : Valuation τ sig (Elt Ideal)) : Valuation τ sig (Elt Ideal) := after (stepOps67 (F := Ideal)) (val67 V0)
theorem val68_main_arg0 (V0 : Valuation τ sig (Elt Ideal)) : val68 V0 (Proc.devRef .tc main_arg0) = aX V0 :=
  (after_keep _ 10 stepOps67_ok main_arg0 (by decide +kernel) (val67 V0)).trans (val67_main_arg0 V0)
theorem val68_main_arg1 (V0 : Valuation τ sig (Elt Ideal)) : val68 V0 (Proc.devRef .tc main_arg1) = aA V0 :=
  (after_keep _ 10 stepOps67_ok main_arg1 (by decide +kernel) (val67 V0)).trans (val67_main_arg1 V0)
theorem val68_main_arg2 (V0 : Valuation τ sig (Elt Ideal)) : val68 V0 (Proc.devRef .tc main_arg2) = aB V0 :=
  (after_keep _ 10 stepOps67_ok main_arg2 (by decide +kernel) (val67 V0)).trans (val67_main_arg2 V0)
theorem val68_main_arg3 (V0 : Valuation τ sig (Elt Ideal)) : val68 V0 (Proc.devRef .tc main_arg3) = aC V0 :=
  (after_keep _ 10 stepOps67_ok main_arg3 (by decide +kernel) (val67 V0)).trans (val67_main_arg3 V0)
theorem val68_main_v3 (V0 : Valuation τ sig (Elt Ideal)) : val68 V0 (Proc.devRef .tc main_v3) = decay (aA V0) :=
  (after_keep _ 10 stepOps67_ok main_v3 (by decide +kernel) (val67 V0)).trans (val67_main_v3 V0)
theorem val68_h (V0 : Valuation τ sig (Elt Ideal)) : val68 V0 (Proc.devRef .tc main_v1355) = hI (aX V0) (aA V0) (aB V0) 67 := by
  refine ((step67_val (val67 V0)).1).trans ?_
  rw [val67_main_arg0 V0, val67_main_v3 V0, val67_main_arg2 V0, val67_h V0]
  exact (hI_at (aX V0) (aA V0) (aB V0) 66 67 (by decide) rfl).symm
theorem val68_y (V0 : Valuation τ sig (Elt Ideal)) : val68 V0 (Proc.devRef .tc main_v1363) = yJ (aX V0) (aA V0) (aB V0) (aC V0) 68 := by
  refine ((step67_val (val67 V0)).2).trans ?_
  rw [val67_main_arg0 V0, val67_main_v3 V0, val67_main_arg2 V0, val67_main_arg3 V0, val67_h V0, val67_y V0]
  rw [← hI_at (aX V0) (aA V0) (aB V0) 66 67 (by decide) rfl]
  exact (yJ_at (aX V0) (aA V0) (aB V0) (aC V0) 67 68 (by decide) rfl).symm
/-- The contents after step 68. -/
def val69 (V0 : Valuation τ sig (Elt Ideal)) : Valuation τ sig (Elt Ideal) := after (stepOps68 (F := Ideal)) (val68 V0)
theorem val69_main_arg0 (V0 : Valuation τ sig (Elt Ideal)) : val69 V0 (Proc.devRef .tc main_arg0) = aX V0 :=
  (after_keep _ 10 stepOps68_ok main_arg0 (by decide +kernel) (val68 V0)).trans (val68_main_arg0 V0)
theorem val69_main_arg1 (V0 : Valuation τ sig (Elt Ideal)) : val69 V0 (Proc.devRef .tc main_arg1) = aA V0 :=
  (after_keep _ 10 stepOps68_ok main_arg1 (by decide +kernel) (val68 V0)).trans (val68_main_arg1 V0)
theorem val69_main_arg2 (V0 : Valuation τ sig (Elt Ideal)) : val69 V0 (Proc.devRef .tc main_arg2) = aB V0 :=
  (after_keep _ 10 stepOps68_ok main_arg2 (by decide +kernel) (val68 V0)).trans (val68_main_arg2 V0)
theorem val69_main_arg3 (V0 : Valuation τ sig (Elt Ideal)) : val69 V0 (Proc.devRef .tc main_arg3) = aC V0 :=
  (after_keep _ 10 stepOps68_ok main_arg3 (by decide +kernel) (val68 V0)).trans (val68_main_arg3 V0)
theorem val69_main_v3 (V0 : Valuation τ sig (Elt Ideal)) : val69 V0 (Proc.devRef .tc main_v3) = decay (aA V0) :=
  (after_keep _ 10 stepOps68_ok main_v3 (by decide +kernel) (val68 V0)).trans (val68_main_v3 V0)
theorem val69_h (V0 : Valuation τ sig (Elt Ideal)) : val69 V0 (Proc.devRef .tc main_v1375) = hI (aX V0) (aA V0) (aB V0) 68 := by
  refine ((step68_val (val68 V0)).1).trans ?_
  rw [val68_main_arg0 V0, val68_main_v3 V0, val68_main_arg2 V0, val68_h V0]
  exact (hI_at (aX V0) (aA V0) (aB V0) 67 68 (by decide) rfl).symm
theorem val69_y (V0 : Valuation τ sig (Elt Ideal)) : val69 V0 (Proc.devRef .tc main_v1383) = yJ (aX V0) (aA V0) (aB V0) (aC V0) 69 := by
  refine ((step68_val (val68 V0)).2).trans ?_
  rw [val68_main_arg0 V0, val68_main_v3 V0, val68_main_arg2 V0, val68_main_arg3 V0, val68_h V0, val68_y V0]
  rw [← hI_at (aX V0) (aA V0) (aB V0) 67 68 (by decide) rfl]
  exact (yJ_at (aX V0) (aA V0) (aB V0) (aC V0) 68 69 (by decide) rfl).symm
/-- The contents after step 69. -/
def val70 (V0 : Valuation τ sig (Elt Ideal)) : Valuation τ sig (Elt Ideal) := after (stepOps69 (F := Ideal)) (val69 V0)
theorem val70_main_arg0 (V0 : Valuation τ sig (Elt Ideal)) : val70 V0 (Proc.devRef .tc main_arg0) = aX V0 :=
  (after_keep _ 10 stepOps69_ok main_arg0 (by decide +kernel) (val69 V0)).trans (val69_main_arg0 V0)
theorem val70_main_arg1 (V0 : Valuation τ sig (Elt Ideal)) : val70 V0 (Proc.devRef .tc main_arg1) = aA V0 :=
  (after_keep _ 10 stepOps69_ok main_arg1 (by decide +kernel) (val69 V0)).trans (val69_main_arg1 V0)
theorem val70_main_arg2 (V0 : Valuation τ sig (Elt Ideal)) : val70 V0 (Proc.devRef .tc main_arg2) = aB V0 :=
  (after_keep _ 10 stepOps69_ok main_arg2 (by decide +kernel) (val69 V0)).trans (val69_main_arg2 V0)
theorem val70_main_arg3 (V0 : Valuation τ sig (Elt Ideal)) : val70 V0 (Proc.devRef .tc main_arg3) = aC V0 :=
  (after_keep _ 10 stepOps69_ok main_arg3 (by decide +kernel) (val69 V0)).trans (val69_main_arg3 V0)
theorem val70_main_v3 (V0 : Valuation τ sig (Elt Ideal)) : val70 V0 (Proc.devRef .tc main_v3) = decay (aA V0) :=
  (after_keep _ 10 stepOps69_ok main_v3 (by decide +kernel) (val69 V0)).trans (val69_main_v3 V0)
theorem val70_h (V0 : Valuation τ sig (Elt Ideal)) : val70 V0 (Proc.devRef .tc main_v1395) = hI (aX V0) (aA V0) (aB V0) 69 := by
  refine ((step69_val (val69 V0)).1).trans ?_
  rw [val69_main_arg0 V0, val69_main_v3 V0, val69_main_arg2 V0, val69_h V0]
  exact (hI_at (aX V0) (aA V0) (aB V0) 68 69 (by decide) rfl).symm
theorem val70_y (V0 : Valuation τ sig (Elt Ideal)) : val70 V0 (Proc.devRef .tc main_v1403) = yJ (aX V0) (aA V0) (aB V0) (aC V0) 70 := by
  refine ((step69_val (val69 V0)).2).trans ?_
  rw [val69_main_arg0 V0, val69_main_v3 V0, val69_main_arg2 V0, val69_main_arg3 V0, val69_h V0, val69_y V0]
  rw [← hI_at (aX V0) (aA V0) (aB V0) 68 69 (by decide) rfl]
  exact (yJ_at (aX V0) (aA V0) (aB V0) (aC V0) 69 70 (by decide) rfl).symm
/-- The contents after step 70. -/
def val71 (V0 : Valuation τ sig (Elt Ideal)) : Valuation τ sig (Elt Ideal) := after (stepOps70 (F := Ideal)) (val70 V0)
theorem val71_main_arg0 (V0 : Valuation τ sig (Elt Ideal)) : val71 V0 (Proc.devRef .tc main_arg0) = aX V0 :=
  (after_keep _ 10 stepOps70_ok main_arg0 (by decide +kernel) (val70 V0)).trans (val70_main_arg0 V0)
theorem val71_main_arg1 (V0 : Valuation τ sig (Elt Ideal)) : val71 V0 (Proc.devRef .tc main_arg1) = aA V0 :=
  (after_keep _ 10 stepOps70_ok main_arg1 (by decide +kernel) (val70 V0)).trans (val70_main_arg1 V0)
theorem val71_main_arg2 (V0 : Valuation τ sig (Elt Ideal)) : val71 V0 (Proc.devRef .tc main_arg2) = aB V0 :=
  (after_keep _ 10 stepOps70_ok main_arg2 (by decide +kernel) (val70 V0)).trans (val70_main_arg2 V0)
theorem val71_main_arg3 (V0 : Valuation τ sig (Elt Ideal)) : val71 V0 (Proc.devRef .tc main_arg3) = aC V0 :=
  (after_keep _ 10 stepOps70_ok main_arg3 (by decide +kernel) (val70 V0)).trans (val70_main_arg3 V0)
theorem val71_main_v3 (V0 : Valuation τ sig (Elt Ideal)) : val71 V0 (Proc.devRef .tc main_v3) = decay (aA V0) :=
  (after_keep _ 10 stepOps70_ok main_v3 (by decide +kernel) (val70 V0)).trans (val70_main_v3 V0)
theorem val71_h (V0 : Valuation τ sig (Elt Ideal)) : val71 V0 (Proc.devRef .tc main_v1415) = hI (aX V0) (aA V0) (aB V0) 70 := by
  refine ((step70_val (val70 V0)).1).trans ?_
  rw [val70_main_arg0 V0, val70_main_v3 V0, val70_main_arg2 V0, val70_h V0]
  exact (hI_at (aX V0) (aA V0) (aB V0) 69 70 (by decide) rfl).symm
theorem val71_y (V0 : Valuation τ sig (Elt Ideal)) : val71 V0 (Proc.devRef .tc main_v1423) = yJ (aX V0) (aA V0) (aB V0) (aC V0) 71 := by
  refine ((step70_val (val70 V0)).2).trans ?_
  rw [val70_main_arg0 V0, val70_main_v3 V0, val70_main_arg2 V0, val70_main_arg3 V0, val70_h V0, val70_y V0]
  rw [← hI_at (aX V0) (aA V0) (aB V0) 69 70 (by decide) rfl]
  exact (yJ_at (aX V0) (aA V0) (aB V0) (aC V0) 70 71 (by decide) rfl).symm
/-- The contents after step 71. -/
def val72 (V0 : Valuation τ sig (Elt Ideal)) : Valuation τ sig (Elt Ideal) := after (stepOps71 (F := Ideal)) (val71 V0)
theorem val72_main_arg0 (V0 : Valuation τ sig (Elt Ideal)) : val72 V0 (Proc.devRef .tc main_arg0) = aX V0 :=
  (after_keep _ 10 stepOps71_ok main_arg0 (by decide +kernel) (val71 V0)).trans (val71_main_arg0 V0)
theorem val72_main_arg1 (V0 : Valuation τ sig (Elt Ideal)) : val72 V0 (Proc.devRef .tc main_arg1) = aA V0 :=
  (after_keep _ 10 stepOps71_ok main_arg1 (by decide +kernel) (val71 V0)).trans (val71_main_arg1 V0)
theorem val72_main_arg2 (V0 : Valuation τ sig (Elt Ideal)) : val72 V0 (Proc.devRef .tc main_arg2) = aB V0 :=
  (after_keep _ 10 stepOps71_ok main_arg2 (by decide +kernel) (val71 V0)).trans (val71_main_arg2 V0)
theorem val72_main_arg3 (V0 : Valuation τ sig (Elt Ideal)) : val72 V0 (Proc.devRef .tc main_arg3) = aC V0 :=
  (after_keep _ 10 stepOps71_ok main_arg3 (by decide +kernel) (val71 V0)).trans (val71_main_arg3 V0)
theorem val72_main_v3 (V0 : Valuation τ sig (Elt Ideal)) : val72 V0 (Proc.devRef .tc main_v3) = decay (aA V0) :=
  (after_keep _ 10 stepOps71_ok main_v3 (by decide +kernel) (val71 V0)).trans (val71_main_v3 V0)
theorem val72_h (V0 : Valuation τ sig (Elt Ideal)) : val72 V0 (Proc.devRef .tc main_v1435) = hI (aX V0) (aA V0) (aB V0) 71 := by
  refine ((step71_val (val71 V0)).1).trans ?_
  rw [val71_main_arg0 V0, val71_main_v3 V0, val71_main_arg2 V0, val71_h V0]
  exact (hI_at (aX V0) (aA V0) (aB V0) 70 71 (by decide) rfl).symm
theorem val72_y (V0 : Valuation τ sig (Elt Ideal)) : val72 V0 (Proc.devRef .tc main_v1443) = yJ (aX V0) (aA V0) (aB V0) (aC V0) 72 := by
  refine ((step71_val (val71 V0)).2).trans ?_
  rw [val71_main_arg0 V0, val71_main_v3 V0, val71_main_arg2 V0, val71_main_arg3 V0, val71_h V0, val71_y V0]
  rw [← hI_at (aX V0) (aA V0) (aB V0) 70 71 (by decide) rfl]
  exact (yJ_at (aX V0) (aA V0) (aB V0) (aC V0) 71 72 (by decide) rfl).symm
/-- The contents after step 72. -/
def val73 (V0 : Valuation τ sig (Elt Ideal)) : Valuation τ sig (Elt Ideal) := after (stepOps72 (F := Ideal)) (val72 V0)
theorem val73_main_arg0 (V0 : Valuation τ sig (Elt Ideal)) : val73 V0 (Proc.devRef .tc main_arg0) = aX V0 :=
  (after_keep _ 10 stepOps72_ok main_arg0 (by decide +kernel) (val72 V0)).trans (val72_main_arg0 V0)
theorem val73_main_arg1 (V0 : Valuation τ sig (Elt Ideal)) : val73 V0 (Proc.devRef .tc main_arg1) = aA V0 :=
  (after_keep _ 10 stepOps72_ok main_arg1 (by decide +kernel) (val72 V0)).trans (val72_main_arg1 V0)
theorem val73_main_arg2 (V0 : Valuation τ sig (Elt Ideal)) : val73 V0 (Proc.devRef .tc main_arg2) = aB V0 :=
  (after_keep _ 10 stepOps72_ok main_arg2 (by decide +kernel) (val72 V0)).trans (val72_main_arg2 V0)
theorem val73_main_arg3 (V0 : Valuation τ sig (Elt Ideal)) : val73 V0 (Proc.devRef .tc main_arg3) = aC V0 :=
  (after_keep _ 10 stepOps72_ok main_arg3 (by decide +kernel) (val72 V0)).trans (val72_main_arg3 V0)
theorem val73_main_v3 (V0 : Valuation τ sig (Elt Ideal)) : val73 V0 (Proc.devRef .tc main_v3) = decay (aA V0) :=
  (after_keep _ 10 stepOps72_ok main_v3 (by decide +kernel) (val72 V0)).trans (val72_main_v3 V0)
theorem val73_h (V0 : Valuation τ sig (Elt Ideal)) : val73 V0 (Proc.devRef .tc main_v1455) = hI (aX V0) (aA V0) (aB V0) 72 := by
  refine ((step72_val (val72 V0)).1).trans ?_
  rw [val72_main_arg0 V0, val72_main_v3 V0, val72_main_arg2 V0, val72_h V0]
  exact (hI_at (aX V0) (aA V0) (aB V0) 71 72 (by decide) rfl).symm
theorem val73_y (V0 : Valuation τ sig (Elt Ideal)) : val73 V0 (Proc.devRef .tc main_v1463) = yJ (aX V0) (aA V0) (aB V0) (aC V0) 73 := by
  refine ((step72_val (val72 V0)).2).trans ?_
  rw [val72_main_arg0 V0, val72_main_v3 V0, val72_main_arg2 V0, val72_main_arg3 V0, val72_h V0, val72_y V0]
  rw [← hI_at (aX V0) (aA V0) (aB V0) 71 72 (by decide) rfl]
  exact (yJ_at (aX V0) (aA V0) (aB V0) (aC V0) 72 73 (by decide) rfl).symm
/-- The contents after step 73. -/
def val74 (V0 : Valuation τ sig (Elt Ideal)) : Valuation τ sig (Elt Ideal) := after (stepOps73 (F := Ideal)) (val73 V0)
theorem val74_main_arg0 (V0 : Valuation τ sig (Elt Ideal)) : val74 V0 (Proc.devRef .tc main_arg0) = aX V0 :=
  (after_keep _ 10 stepOps73_ok main_arg0 (by decide +kernel) (val73 V0)).trans (val73_main_arg0 V0)
theorem val74_main_arg1 (V0 : Valuation τ sig (Elt Ideal)) : val74 V0 (Proc.devRef .tc main_arg1) = aA V0 :=
  (after_keep _ 10 stepOps73_ok main_arg1 (by decide +kernel) (val73 V0)).trans (val73_main_arg1 V0)
theorem val74_main_arg2 (V0 : Valuation τ sig (Elt Ideal)) : val74 V0 (Proc.devRef .tc main_arg2) = aB V0 :=
  (after_keep _ 10 stepOps73_ok main_arg2 (by decide +kernel) (val73 V0)).trans (val73_main_arg2 V0)
theorem val74_main_arg3 (V0 : Valuation τ sig (Elt Ideal)) : val74 V0 (Proc.devRef .tc main_arg3) = aC V0 :=
  (after_keep _ 10 stepOps73_ok main_arg3 (by decide +kernel) (val73 V0)).trans (val73_main_arg3 V0)
theorem val74_main_v3 (V0 : Valuation τ sig (Elt Ideal)) : val74 V0 (Proc.devRef .tc main_v3) = decay (aA V0) :=
  (after_keep _ 10 stepOps73_ok main_v3 (by decide +kernel) (val73 V0)).trans (val73_main_v3 V0)
theorem val74_h (V0 : Valuation τ sig (Elt Ideal)) : val74 V0 (Proc.devRef .tc main_v1475) = hI (aX V0) (aA V0) (aB V0) 73 := by
  refine ((step73_val (val73 V0)).1).trans ?_
  rw [val73_main_arg0 V0, val73_main_v3 V0, val73_main_arg2 V0, val73_h V0]
  exact (hI_at (aX V0) (aA V0) (aB V0) 72 73 (by decide) rfl).symm
theorem val74_y (V0 : Valuation τ sig (Elt Ideal)) : val74 V0 (Proc.devRef .tc main_v1483) = yJ (aX V0) (aA V0) (aB V0) (aC V0) 74 := by
  refine ((step73_val (val73 V0)).2).trans ?_
  rw [val73_main_arg0 V0, val73_main_v3 V0, val73_main_arg2 V0, val73_main_arg3 V0, val73_h V0, val73_y V0]
  rw [← hI_at (aX V0) (aA V0) (aB V0) 72 73 (by decide) rfl]
  exact (yJ_at (aX V0) (aA V0) (aB V0) (aC V0) 73 74 (by decide) rfl).symm
/-- The contents after step 74. -/
def val75 (V0 : Valuation τ sig (Elt Ideal)) : Valuation τ sig (Elt Ideal) := after (stepOps74 (F := Ideal)) (val74 V0)
theorem val75_main_arg0 (V0 : Valuation τ sig (Elt Ideal)) : val75 V0 (Proc.devRef .tc main_arg0) = aX V0 :=
  (after_keep _ 10 stepOps74_ok main_arg0 (by decide +kernel) (val74 V0)).trans (val74_main_arg0 V0)
theorem val75_main_arg1 (V0 : Valuation τ sig (Elt Ideal)) : val75 V0 (Proc.devRef .tc main_arg1) = aA V0 :=
  (after_keep _ 10 stepOps74_ok main_arg1 (by decide +kernel) (val74 V0)).trans (val74_main_arg1 V0)
theorem val75_main_arg2 (V0 : Valuation τ sig (Elt Ideal)) : val75 V0 (Proc.devRef .tc main_arg2) = aB V0 :=
  (after_keep _ 10 stepOps74_ok main_arg2 (by decide +kernel) (val74 V0)).trans (val74_main_arg2 V0)
theorem val75_main_arg3 (V0 : Valuation τ sig (Elt Ideal)) : val75 V0 (Proc.devRef .tc main_arg3) = aC V0 :=
  (after_keep _ 10 stepOps74_ok main_arg3 (by decide +kernel) (val74 V0)).trans (val74_main_arg3 V0)
theorem val75_main_v3 (V0 : Valuation τ sig (Elt Ideal)) : val75 V0 (Proc.devRef .tc main_v3) = decay (aA V0) :=
  (after_keep _ 10 stepOps74_ok main_v3 (by decide +kernel) (val74 V0)).trans (val74_main_v3 V0)
theorem val75_h (V0 : Valuation τ sig (Elt Ideal)) : val75 V0 (Proc.devRef .tc main_v1495) = hI (aX V0) (aA V0) (aB V0) 74 := by
  refine ((step74_val (val74 V0)).1).trans ?_
  rw [val74_main_arg0 V0, val74_main_v3 V0, val74_main_arg2 V0, val74_h V0]
  exact (hI_at (aX V0) (aA V0) (aB V0) 73 74 (by decide) rfl).symm
theorem val75_y (V0 : Valuation τ sig (Elt Ideal)) : val75 V0 (Proc.devRef .tc main_v1503) = yJ (aX V0) (aA V0) (aB V0) (aC V0) 75 := by
  refine ((step74_val (val74 V0)).2).trans ?_
  rw [val74_main_arg0 V0, val74_main_v3 V0, val74_main_arg2 V0, val74_main_arg3 V0, val74_h V0, val74_y V0]
  rw [← hI_at (aX V0) (aA V0) (aB V0) 73 74 (by decide) rfl]
  exact (yJ_at (aX V0) (aA V0) (aB V0) (aC V0) 74 75 (by decide) rfl).symm
/-- The contents after step 75. -/
def val76 (V0 : Valuation τ sig (Elt Ideal)) : Valuation τ sig (Elt Ideal) := after (stepOps75 (F := Ideal)) (val75 V0)
theorem val76_main_arg0 (V0 : Valuation τ sig (Elt Ideal)) : val76 V0 (Proc.devRef .tc main_arg0) = aX V0 :=
  (after_keep _ 10 stepOps75_ok main_arg0 (by decide +kernel) (val75 V0)).trans (val75_main_arg0 V0)
theorem val76_main_arg1 (V0 : Valuation τ sig (Elt Ideal)) : val76 V0 (Proc.devRef .tc main_arg1) = aA V0 :=
  (after_keep _ 10 stepOps75_ok main_arg1 (by decide +kernel) (val75 V0)).trans (val75_main_arg1 V0)
theorem val76_main_arg2 (V0 : Valuation τ sig (Elt Ideal)) : val76 V0 (Proc.devRef .tc main_arg2) = aB V0 :=
  (after_keep _ 10 stepOps75_ok main_arg2 (by decide +kernel) (val75 V0)).trans (val75_main_arg2 V0)
theorem val76_main_arg3 (V0 : Valuation τ sig (Elt Ideal)) : val76 V0 (Proc.devRef .tc main_arg3) = aC V0 :=
  (after_keep _ 10 stepOps75_ok main_arg3 (by decide +kernel) (val75 V0)).trans (val75_main_arg3 V0)
theorem val76_main_v3 (V0 : Valuation τ sig (Elt Ideal)) : val76 V0 (Proc.devRef .tc main_v3) = decay (aA V0) :=
  (after_keep _ 10 stepOps75_ok main_v3 (by decide +kernel) (val75 V0)).trans (val75_main_v3 V0)
theorem val76_h (V0 : Valuation τ sig (Elt Ideal)) : val76 V0 (Proc.devRef .tc main_v1515) = hI (aX V0) (aA V0) (aB V0) 75 := by
  refine ((step75_val (val75 V0)).1).trans ?_
  rw [val75_main_arg0 V0, val75_main_v3 V0, val75_main_arg2 V0, val75_h V0]
  exact (hI_at (aX V0) (aA V0) (aB V0) 74 75 (by decide) rfl).symm
theorem val76_y (V0 : Valuation τ sig (Elt Ideal)) : val76 V0 (Proc.devRef .tc main_v1523) = yJ (aX V0) (aA V0) (aB V0) (aC V0) 76 := by
  refine ((step75_val (val75 V0)).2).trans ?_
  rw [val75_main_arg0 V0, val75_main_v3 V0, val75_main_arg2 V0, val75_main_arg3 V0, val75_h V0, val75_y V0]
  rw [← hI_at (aX V0) (aA V0) (aB V0) 74 75 (by decide) rfl]
  exact (yJ_at (aX V0) (aA V0) (aB V0) (aC V0) 75 76 (by decide) rfl).symm
/-- The contents after step 76. -/
def val77 (V0 : Valuation τ sig (Elt Ideal)) : Valuation τ sig (Elt Ideal) := after (stepOps76 (F := Ideal)) (val76 V0)
theorem val77_main_arg0 (V0 : Valuation τ sig (Elt Ideal)) : val77 V0 (Proc.devRef .tc main_arg0) = aX V0 :=
  (after_keep _ 10 stepOps76_ok main_arg0 (by decide +kernel) (val76 V0)).trans (val76_main_arg0 V0)
theorem val77_main_arg1 (V0 : Valuation τ sig (Elt Ideal)) : val77 V0 (Proc.devRef .tc main_arg1) = aA V0 :=
  (after_keep _ 10 stepOps76_ok main_arg1 (by decide +kernel) (val76 V0)).trans (val76_main_arg1 V0)
theorem val77_main_arg2 (V0 : Valuation τ sig (Elt Ideal)) : val77 V0 (Proc.devRef .tc main_arg2) = aB V0 :=
  (after_keep _ 10 stepOps76_ok main_arg2 (by decide +kernel) (val76 V0)).trans (val76_main_arg2 V0)
theorem val77_main_arg3 (V0 : Valuation τ sig (Elt Ideal)) : val77 V0 (Proc.devRef .tc main_arg3) = aC V0 :=
  (after_keep _ 10 stepOps76_ok main_arg3 (by decide +kernel) (val76 V0)).trans (val76_main_arg3 V0)
theorem val77_main_v3 (V0 : Valuation τ sig (Elt Ideal)) : val77 V0 (Proc.devRef .tc main_v3) = decay (aA V0) :=
  (after_keep _ 10 stepOps76_ok main_v3 (by decide +kernel) (val76 V0)).trans (val76_main_v3 V0)
theorem val77_h (V0 : Valuation τ sig (Elt Ideal)) : val77 V0 (Proc.devRef .tc main_v1535) = hI (aX V0) (aA V0) (aB V0) 76 := by
  refine ((step76_val (val76 V0)).1).trans ?_
  rw [val76_main_arg0 V0, val76_main_v3 V0, val76_main_arg2 V0, val76_h V0]
  exact (hI_at (aX V0) (aA V0) (aB V0) 75 76 (by decide) rfl).symm
theorem val77_y (V0 : Valuation τ sig (Elt Ideal)) : val77 V0 (Proc.devRef .tc main_v1543) = yJ (aX V0) (aA V0) (aB V0) (aC V0) 77 := by
  refine ((step76_val (val76 V0)).2).trans ?_
  rw [val76_main_arg0 V0, val76_main_v3 V0, val76_main_arg2 V0, val76_main_arg3 V0, val76_h V0, val76_y V0]
  rw [← hI_at (aX V0) (aA V0) (aB V0) 75 76 (by decide) rfl]
  exact (yJ_at (aX V0) (aA V0) (aB V0) (aC V0) 76 77 (by decide) rfl).symm
/-- The contents after step 77. -/
def val78 (V0 : Valuation τ sig (Elt Ideal)) : Valuation τ sig (Elt Ideal) := after (stepOps77 (F := Ideal)) (val77 V0)
theorem val78_main_arg0 (V0 : Valuation τ sig (Elt Ideal)) : val78 V0 (Proc.devRef .tc main_arg0) = aX V0 :=
  (after_keep _ 10 stepOps77_ok main_arg0 (by decide +kernel) (val77 V0)).trans (val77_main_arg0 V0)
theorem val78_main_arg1 (V0 : Valuation τ sig (Elt Ideal)) : val78 V0 (Proc.devRef .tc main_arg1) = aA V0 :=
  (after_keep _ 10 stepOps77_ok main_arg1 (by decide +kernel) (val77 V0)).trans (val77_main_arg1 V0)
theorem val78_main_arg2 (V0 : Valuation τ sig (Elt Ideal)) : val78 V0 (Proc.devRef .tc main_arg2) = aB V0 :=
  (after_keep _ 10 stepOps77_ok main_arg2 (by decide +kernel) (val77 V0)).trans (val77_main_arg2 V0)
theorem val78_main_arg3 (V0 : Valuation τ sig (Elt Ideal)) : val78 V0 (Proc.devRef .tc main_arg3) = aC V0 :=
  (after_keep _ 10 stepOps77_ok main_arg3 (by decide +kernel) (val77 V0)).trans (val77_main_arg3 V0)
theorem val78_main_v3 (V0 : Valuation τ sig (Elt Ideal)) : val78 V0 (Proc.devRef .tc main_v3) = decay (aA V0) :=
  (after_keep _ 10 stepOps77_ok main_v3 (by decide +kernel) (val77 V0)).trans (val77_main_v3 V0)
theorem val78_h (V0 : Valuation τ sig (Elt Ideal)) : val78 V0 (Proc.devRef .tc main_v1555) = hI (aX V0) (aA V0) (aB V0) 77 := by
  refine ((step77_val (val77 V0)).1).trans ?_
  rw [val77_main_arg0 V0, val77_main_v3 V0, val77_main_arg2 V0, val77_h V0]
  exact (hI_at (aX V0) (aA V0) (aB V0) 76 77 (by decide) rfl).symm
theorem val78_y (V0 : Valuation τ sig (Elt Ideal)) : val78 V0 (Proc.devRef .tc main_v1563) = yJ (aX V0) (aA V0) (aB V0) (aC V0) 78 := by
  refine ((step77_val (val77 V0)).2).trans ?_
  rw [val77_main_arg0 V0, val77_main_v3 V0, val77_main_arg2 V0, val77_main_arg3 V0, val77_h V0, val77_y V0]
  rw [← hI_at (aX V0) (aA V0) (aB V0) 76 77 (by decide) rfl]
  exact (yJ_at (aX V0) (aA V0) (aB V0) (aC V0) 77 78 (by decide) rfl).symm
/-- The contents after step 78. -/
def val79 (V0 : Valuation τ sig (Elt Ideal)) : Valuation τ sig (Elt Ideal) := after (stepOps78 (F := Ideal)) (val78 V0)
theorem val79_main_arg0 (V0 : Valuation τ sig (Elt Ideal)) : val79 V0 (Proc.devRef .tc main_arg0) = aX V0 :=
  (after_keep _ 10 stepOps78_ok main_arg0 (by decide +kernel) (val78 V0)).trans (val78_main_arg0 V0)
theorem val79_main_arg1 (V0 : Valuation τ sig (Elt Ideal)) : val79 V0 (Proc.devRef .tc main_arg1) = aA V0 :=
  (after_keep _ 10 stepOps78_ok main_arg1 (by decide +kernel) (val78 V0)).trans (val78_main_arg1 V0)
theorem val79_main_arg2 (V0 : Valuation τ sig (Elt Ideal)) : val79 V0 (Proc.devRef .tc main_arg2) = aB V0 :=
  (after_keep _ 10 stepOps78_ok main_arg2 (by decide +kernel) (val78 V0)).trans (val78_main_arg2 V0)
theorem val79_main_arg3 (V0 : Valuation τ sig (Elt Ideal)) : val79 V0 (Proc.devRef .tc main_arg3) = aC V0 :=
  (after_keep _ 10 stepOps78_ok main_arg3 (by decide +kernel) (val78 V0)).trans (val78_main_arg3 V0)
theorem val79_main_v3 (V0 : Valuation τ sig (Elt Ideal)) : val79 V0 (Proc.devRef .tc main_v3) = decay (aA V0) :=
  (after_keep _ 10 stepOps78_ok main_v3 (by decide +kernel) (val78 V0)).trans (val78_main_v3 V0)
theorem val79_h (V0 : Valuation τ sig (Elt Ideal)) : val79 V0 (Proc.devRef .tc main_v1575) = hI (aX V0) (aA V0) (aB V0) 78 := by
  refine ((step78_val (val78 V0)).1).trans ?_
  rw [val78_main_arg0 V0, val78_main_v3 V0, val78_main_arg2 V0, val78_h V0]
  exact (hI_at (aX V0) (aA V0) (aB V0) 77 78 (by decide) rfl).symm
theorem val79_y (V0 : Valuation τ sig (Elt Ideal)) : val79 V0 (Proc.devRef .tc main_v1583) = yJ (aX V0) (aA V0) (aB V0) (aC V0) 79 := by
  refine ((step78_val (val78 V0)).2).trans ?_
  rw [val78_main_arg0 V0, val78_main_v3 V0, val78_main_arg2 V0, val78_main_arg3 V0, val78_h V0, val78_y V0]
  rw [← hI_at (aX V0) (aA V0) (aB V0) 77 78 (by decide) rfl]
  exact (yJ_at (aX V0) (aA V0) (aB V0) (aC V0) 78 79 (by decide) rfl).symm
/-- The contents after step 79. -/
def val80 (V0 : Valuation τ sig (Elt Ideal)) : Valuation τ sig (Elt Ideal) := after (stepOps79 (F := Ideal)) (val79 V0)
theorem val80_main_arg0 (V0 : Valuation τ sig (Elt Ideal)) : val80 V0 (Proc.devRef .tc main_arg0) = aX V0 :=
  (after_keep _ 10 stepOps79_ok main_arg0 (by decide +kernel) (val79 V0)).trans (val79_main_arg0 V0)
theorem val80_main_arg1 (V0 : Valuation τ sig (Elt Ideal)) : val80 V0 (Proc.devRef .tc main_arg1) = aA V0 :=
  (after_keep _ 10 stepOps79_ok main_arg1 (by decide +kernel) (val79 V0)).trans (val79_main_arg1 V0)
theorem val80_main_arg2 (V0 : Valuation τ sig (Elt Ideal)) : val80 V0 (Proc.devRef .tc main_arg2) = aB V0 :=
  (after_keep _ 10 stepOps79_ok main_arg2 (by decide +kernel) (val79 V0)).trans (val79_main_arg2 V0)
theorem val80_main_arg3 (V0 : Valuation τ sig (Elt Ideal)) : val80 V0 (Proc.devRef .tc main_arg3) = aC V0 :=
  (after_keep _ 10 stepOps79_ok main_arg3 (by decide +kernel) (val79 V0)).trans (val79_main_arg3 V0)
theorem val80_main_v3 (V0 : Valuation τ sig (Elt Ideal)) : val80 V0 (Proc.devRef .tc main_v3) = decay (aA V0) :=
  (after_keep _ 10 stepOps79_ok main_v3 (by decide +kernel) (val79 V0)).trans (val79_main_v3 V0)
theorem val80_h (V0 : Valuation τ sig (Elt Ideal)) : val80 V0 (Proc.devRef .tc main_v1595) = hI (aX V0) (aA V0) (aB V0) 79 := by
  refine ((step79_val (val79 V0)).1).trans ?_
  rw [val79_main_arg0 V0, val79_main_v3 V0, val79_main_arg2 V0, val79_h V0]
  exact (hI_at (aX V0) (aA V0) (aB V0) 78 79 (by decide) rfl).symm
theorem val80_y (V0 : Valuation τ sig (Elt Ideal)) : val80 V0 (Proc.devRef .tc main_v1603) = yJ (aX V0) (aA V0) (aB V0) (aC V0) 80 := by
  refine ((step79_val (val79 V0)).2).trans ?_
  rw [val79_main_arg0 V0, val79_main_v3 V0, val79_main_arg2 V0, val79_main_arg3 V0, val79_h V0, val79_y V0]
  rw [← hI_at (aX V0) (aA V0) (aB V0) 78 79 (by decide) rfl]
  exact (yJ_at (aX V0) (aA V0) (aB V0) (aC V0) 79 80 (by decide) rfl).symm
/-- The contents after step 80. -/
def val81 (V0 : Valuation τ sig (Elt Ideal)) : Valuation τ sig (Elt Ideal) := after (stepOps80 (F := Ideal)) (val80 V0)
theorem val81_main_arg0 (V0 : Valuation τ sig (Elt Ideal)) : val81 V0 (Proc.devRef .tc main_arg0) = aX V0 :=
  (after_keep _ 10 stepOps80_ok main_arg0 (by decide +kernel) (val80 V0)).trans (val80_main_arg0 V0)
theorem val81_main_arg1 (V0 : Valuation τ sig (Elt Ideal)) : val81 V0 (Proc.devRef .tc main_arg1) = aA V0 :=
  (after_keep _ 10 stepOps80_ok main_arg1 (by decide +kernel) (val80 V0)).trans (val80_main_arg1 V0)
theorem val81_main_arg2 (V0 : Valuation τ sig (Elt Ideal)) : val81 V0 (Proc.devRef .tc main_arg2) = aB V0 :=
  (after_keep _ 10 stepOps80_ok main_arg2 (by decide +kernel) (val80 V0)).trans (val80_main_arg2 V0)
theorem val81_main_arg3 (V0 : Valuation τ sig (Elt Ideal)) : val81 V0 (Proc.devRef .tc main_arg3) = aC V0 :=
  (after_keep _ 10 stepOps80_ok main_arg3 (by decide +kernel) (val80 V0)).trans (val80_main_arg3 V0)
theorem val81_main_v3 (V0 : Valuation τ sig (Elt Ideal)) : val81 V0 (Proc.devRef .tc main_v3) = decay (aA V0) :=
  (after_keep _ 10 stepOps80_ok main_v3 (by decide +kernel) (val80 V0)).trans (val80_main_v3 V0)
theorem val81_h (V0 : Valuation τ sig (Elt Ideal)) : val81 V0 (Proc.devRef .tc main_v1615) = hI (aX V0) (aA V0) (aB V0) 80 := by
  refine ((step80_val (val80 V0)).1).trans ?_
  rw [val80_main_arg0 V0, val80_main_v3 V0, val80_main_arg2 V0, val80_h V0]
  exact (hI_at (aX V0) (aA V0) (aB V0) 79 80 (by decide) rfl).symm
theorem val81_y (V0 : Valuation τ sig (Elt Ideal)) : val81 V0 (Proc.devRef .tc main_v1623) = yJ (aX V0) (aA V0) (aB V0) (aC V0) 81 := by
  refine ((step80_val (val80 V0)).2).trans ?_
  rw [val80_main_arg0 V0, val80_main_v3 V0, val80_main_arg2 V0, val80_main_arg3 V0, val80_h V0, val80_y V0]
  rw [← hI_at (aX V0) (aA V0) (aB V0) 79 80 (by decide) rfl]
  exact (yJ_at (aX V0) (aA V0) (aB V0) (aC V0) 80 81 (by decide) rfl).symm
/-- The contents after step 81. -/
def val82 (V0 : Valuation τ sig (Elt Ideal)) : Valuation τ sig (Elt Ideal) := after (stepOps81 (F := Ideal)) (val81 V0)
theorem val82_main_arg0 (V0 : Valuation τ sig (Elt Ideal)) : val82 V0 (Proc.devRef .tc main_arg0) = aX V0 :=
  (after_keep _ 10 stepOps81_ok main_arg0 (by decide +kernel) (val81 V0)).trans (val81_main_arg0 V0)
theorem val82_main_arg1 (V0 : Valuation τ sig (Elt Ideal)) : val82 V0 (Proc.devRef .tc main_arg1) = aA V0 :=
  (after_keep _ 10 stepOps81_ok main_arg1 (by decide +kernel) (val81 V0)).trans (val81_main_arg1 V0)
theorem val82_main_arg2 (V0 : Valuation τ sig (Elt Ideal)) : val82 V0 (Proc.devRef .tc main_arg2) = aB V0 :=
  (after_keep _ 10 stepOps81_ok main_arg2 (by decide +kernel) (val81 V0)).trans (val81_main_arg2 V0)
theorem val82_main_arg3 (V0 : Valuation τ sig (Elt Ideal)) : val82 V0 (Proc.devRef .tc main_arg3) = aC V0 :=
  (after_keep _ 10 stepOps81_ok main_arg3 (by decide +kernel) (val81 V0)).trans (val81_main_arg3 V0)
theorem val82_main_v3 (V0 : Valuation τ sig (Elt Ideal)) : val82 V0 (Proc.devRef .tc main_v3) = decay (aA V0) :=
  (after_keep _ 10 stepOps81_ok main_v3 (by decide +kernel) (val81 V0)).trans (val81_main_v3 V0)
theorem val82_h (V0 : Valuation τ sig (Elt Ideal)) : val82 V0 (Proc.devRef .tc main_v1635) = hI (aX V0) (aA V0) (aB V0) 81 := by
  refine ((step81_val (val81 V0)).1).trans ?_
  rw [val81_main_arg0 V0, val81_main_v3 V0, val81_main_arg2 V0, val81_h V0]
  exact (hI_at (aX V0) (aA V0) (aB V0) 80 81 (by decide) rfl).symm
theorem val82_y (V0 : Valuation τ sig (Elt Ideal)) : val82 V0 (Proc.devRef .tc main_v1643) = yJ (aX V0) (aA V0) (aB V0) (aC V0) 82 := by
  refine ((step81_val (val81 V0)).2).trans ?_
  rw [val81_main_arg0 V0, val81_main_v3 V0, val81_main_arg2 V0, val81_main_arg3 V0, val81_h V0, val81_y V0]
  rw [← hI_at (aX V0) (aA V0) (aB V0) 80 81 (by decide) rfl]
  exact (yJ_at (aX V0) (aA V0) (aB V0) (aC V0) 81 82 (by decide) rfl).symm
/-- The contents after step 82. -/
def val83 (V0 : Valuation τ sig (Elt Ideal)) : Valuation τ sig (Elt Ideal) := after (stepOps82 (F := Ideal)) (val82 V0)
theorem val83_main_arg0 (V0 : Valuation τ sig (Elt Ideal)) : val83 V0 (Proc.devRef .tc main_arg0) = aX V0 :=
  (after_keep _ 10 stepOps82_ok main_arg0 (by decide +kernel) (val82 V0)).trans (val82_main_arg0 V0)
theorem val83_main_arg1 (V0 : Valuation τ sig (Elt Ideal)) : val83 V0 (Proc.devRef .tc main_arg1) = aA V0 :=
  (after_keep _ 10 stepOps82_ok main_arg1 (by decide +kernel) (val82 V0)).trans (val82_main_arg1 V0)
theorem val83_main_arg2 (V0 : Valuation τ sig (Elt Ideal)) : val83 V0 (Proc.devRef .tc main_arg2) = aB V0 :=
  (after_keep _ 10 stepOps82_ok main_arg2 (by decide +kernel) (val82 V0)).trans (val82_main_arg2 V0)
theorem val83_main_arg3 (V0 : Valuation τ sig (Elt Ideal)) : val83 V0 (Proc.devRef .tc main_arg3) = aC V0 :=
  (after_keep _ 10 stepOps82_ok main_arg3 (by decide +kernel) (val82 V0)).trans (val82_main_arg3 V0)
theorem val83_main_v3 (V0 : Valuation τ sig (Elt Ideal)) : val83 V0 (Proc.devRef .tc main_v3) = decay (aA V0) :=
  (after_keep _ 10 stepOps82_ok main_v3 (by decide +kernel) (val82 V0)).trans (val82_main_v3 V0)
theorem val83_h (V0 : Valuation τ sig (Elt Ideal)) : val83 V0 (Proc.devRef .tc main_v1655) = hI (aX V0) (aA V0) (aB V0) 82 := by
  refine ((step82_val (val82 V0)).1).trans ?_
  rw [val82_main_arg0 V0, val82_main_v3 V0, val82_main_arg2 V0, val82_h V0]
  exact (hI_at (aX V0) (aA V0) (aB V0) 81 82 (by decide) rfl).symm
theorem val83_y (V0 : Valuation τ sig (Elt Ideal)) : val83 V0 (Proc.devRef .tc main_v1663) = yJ (aX V0) (aA V0) (aB V0) (aC V0) 83 := by
  refine ((step82_val (val82 V0)).2).trans ?_
  rw [val82_main_arg0 V0, val82_main_v3 V0, val82_main_arg2 V0, val82_main_arg3 V0, val82_h V0, val82_y V0]
  rw [← hI_at (aX V0) (aA V0) (aB V0) 81 82 (by decide) rfl]
  exact (yJ_at (aX V0) (aA V0) (aB V0) (aC V0) 82 83 (by decide) rfl).symm
/-- The contents after step 83. -/
def val84 (V0 : Valuation τ sig (Elt Ideal)) : Valuation τ sig (Elt Ideal) := after (stepOps83 (F := Ideal)) (val83 V0)
theorem val84_main_arg0 (V0 : Valuation τ sig (Elt Ideal)) : val84 V0 (Proc.devRef .tc main_arg0) = aX V0 :=
  (after_keep _ 10 stepOps83_ok main_arg0 (by decide +kernel) (val83 V0)).trans (val83_main_arg0 V0)
theorem val84_main_arg1 (V0 : Valuation τ sig (Elt Ideal)) : val84 V0 (Proc.devRef .tc main_arg1) = aA V0 :=
  (after_keep _ 10 stepOps83_ok main_arg1 (by decide +kernel) (val83 V0)).trans (val83_main_arg1 V0)
theorem val84_main_arg2 (V0 : Valuation τ sig (Elt Ideal)) : val84 V0 (Proc.devRef .tc main_arg2) = aB V0 :=
  (after_keep _ 10 stepOps83_ok main_arg2 (by decide +kernel) (val83 V0)).trans (val83_main_arg2 V0)
theorem val84_main_arg3 (V0 : Valuation τ sig (Elt Ideal)) : val84 V0 (Proc.devRef .tc main_arg3) = aC V0 :=
  (after_keep _ 10 stepOps83_ok main_arg3 (by decide +kernel) (val83 V0)).trans (val83_main_arg3 V0)
theorem val84_main_v3 (V0 : Valuation τ sig (Elt Ideal)) : val84 V0 (Proc.devRef .tc main_v3) = decay (aA V0) :=
  (after_keep _ 10 stepOps83_ok main_v3 (by decide +kernel) (val83 V0)).trans (val83_main_v3 V0)
theorem val84_h (V0 : Valuation τ sig (Elt Ideal)) : val84 V0 (Proc.devRef .tc main_v1675) = hI (aX V0) (aA V0) (aB V0) 83 := by
  refine ((step83_val (val83 V0)).1).trans ?_
  rw [val83_main_arg0 V0, val83_main_v3 V0, val83_main_arg2 V0, val83_h V0]
  exact (hI_at (aX V0) (aA V0) (aB V0) 82 83 (by decide) rfl).symm
theorem val84_y (V0 : Valuation τ sig (Elt Ideal)) : val84 V0 (Proc.devRef .tc main_v1683) = yJ (aX V0) (aA V0) (aB V0) (aC V0) 84 := by
  refine ((step83_val (val83 V0)).2).trans ?_
  rw [val83_main_arg0 V0, val83_main_v3 V0, val83_main_arg2 V0, val83_main_arg3 V0, val83_h V0, val83_y V0]
  rw [← hI_at (aX V0) (aA V0) (aB V0) 82 83 (by decide) rfl]
  exact (yJ_at (aX V0) (aA V0) (aB V0) (aC V0) 83 84 (by decide) rfl).symm
/-- The contents after step 84. -/
def val85 (V0 : Valuation τ sig (Elt Ideal)) : Valuation τ sig (Elt Ideal) := after (stepOps84 (F := Ideal)) (val84 V0)
theorem val85_main_arg0 (V0 : Valuation τ sig (Elt Ideal)) : val85 V0 (Proc.devRef .tc main_arg0) = aX V0 :=
  (after_keep _ 10 stepOps84_ok main_arg0 (by decide +kernel) (val84 V0)).trans (val84_main_arg0 V0)
theorem val85_main_arg1 (V0 : Valuation τ sig (Elt Ideal)) : val85 V0 (Proc.devRef .tc main_arg1) = aA V0 :=
  (after_keep _ 10 stepOps84_ok main_arg1 (by decide +kernel) (val84 V0)).trans (val84_main_arg1 V0)
theorem val85_main_arg2 (V0 : Valuation τ sig (Elt Ideal)) : val85 V0 (Proc.devRef .tc main_arg2) = aB V0 :=
  (after_keep _ 10 stepOps84_ok main_arg2 (by decide +kernel) (val84 V0)).trans (val84_main_arg2 V0)
theorem val85_main_arg3 (V0 : Valuation τ sig (Elt Ideal)) : val85 V0 (Proc.devRef .tc main_arg3) = aC V0 :=
  (after_keep _ 10 stepOps84_ok main_arg3 (by decide +kernel) (val84 V0)).trans (val84_main_arg3 V0)
theorem val85_main_v3 (V0 : Valuation τ sig (Elt Ideal)) : val85 V0 (Proc.devRef .tc main_v3) = decay (aA V0) :=
  (after_keep _ 10 stepOps84_ok main_v3 (by decide +kernel) (val84 V0)).trans (val84_main_v3 V0)
theorem val85_h (V0 : Valuation τ sig (Elt Ideal)) : val85 V0 (Proc.devRef .tc main_v1695) = hI (aX V0) (aA V0) (aB V0) 84 := by
  refine ((step84_val (val84 V0)).1).trans ?_
  rw [val84_main_arg0 V0, val84_main_v3 V0, val84_main_arg2 V0, val84_h V0]
  exact (hI_at (aX V0) (aA V0) (aB V0) 83 84 (by decide) rfl).symm
theorem val85_y (V0 : Valuation τ sig (Elt Ideal)) : val85 V0 (Proc.devRef .tc main_v1703) = yJ (aX V0) (aA V0) (aB V0) (aC V0) 85 := by
  refine ((step84_val (val84 V0)).2).trans ?_
  rw [val84_main_arg0 V0, val84_main_v3 V0, val84_main_arg2 V0, val84_main_arg3 V0, val84_h V0, val84_y V0]
  rw [← hI_at (aX V0) (aA V0) (aB V0) 83 84 (by decide) rfl]
  exact (yJ_at (aX V0) (aA V0) (aB V0) (aC V0) 84 85 (by decide) rfl).symm
/-- The contents after step 85. -/
def val86 (V0 : Valuation τ sig (Elt Ideal)) : Valuation τ sig (Elt Ideal) := after (stepOps85 (F := Ideal)) (val85 V0)
theorem val86_main_arg0 (V0 : Valuation τ sig (Elt Ideal)) : val86 V0 (Proc.devRef .tc main_arg0) = aX V0 :=
  (after_keep _ 10 stepOps85_ok main_arg0 (by decide +kernel) (val85 V0)).trans (val85_main_arg0 V0)
theorem val86_main_arg1 (V0 : Valuation τ sig (Elt Ideal)) : val86 V0 (Proc.devRef .tc main_arg1) = aA V0 :=
  (after_keep _ 10 stepOps85_ok main_arg1 (by decide +kernel) (val85 V0)).trans (val85_main_arg1 V0)
theorem val86_main_arg2 (V0 : Valuation τ sig (Elt Ideal)) : val86 V0 (Proc.devRef .tc main_arg2) = aB V0 :=
  (after_keep _ 10 stepOps85_ok main_arg2 (by decide +kernel) (val85 V0)).trans (val85_main_arg2 V0)
theorem val86_main_arg3 (V0 : Valuation τ sig (Elt Ideal)) : val86 V0 (Proc.devRef .tc main_arg3) = aC V0 :=
  (after_keep _ 10 stepOps85_ok main_arg3 (by decide +kernel) (val85 V0)).trans (val85_main_arg3 V0)
theorem val86_main_v3 (V0 : Valuation τ sig (Elt Ideal)) : val86 V0 (Proc.devRef .tc main_v3) = decay (aA V0) :=
  (after_keep _ 10 stepOps85_ok main_v3 (by decide +kernel) (val85 V0)).trans (val85_main_v3 V0)
theorem val86_h (V0 : Valuation τ sig (Elt Ideal)) : val86 V0 (Proc.devRef .tc main_v1715) = hI (aX V0) (aA V0) (aB V0) 85 := by
  refine ((step85_val (val85 V0)).1).trans ?_
  rw [val85_main_arg0 V0, val85_main_v3 V0, val85_main_arg2 V0, val85_h V0]
  exact (hI_at (aX V0) (aA V0) (aB V0) 84 85 (by decide) rfl).symm
theorem val86_y (V0 : Valuation τ sig (Elt Ideal)) : val86 V0 (Proc.devRef .tc main_v1723) = yJ (aX V0) (aA V0) (aB V0) (aC V0) 86 := by
  refine ((step85_val (val85 V0)).2).trans ?_
  rw [val85_main_arg0 V0, val85_main_v3 V0, val85_main_arg2 V0, val85_main_arg3 V0, val85_h V0, val85_y V0]
  rw [← hI_at (aX V0) (aA V0) (aB V0) 84 85 (by decide) rfl]
  exact (yJ_at (aX V0) (aA V0) (aB V0) (aC V0) 85 86 (by decide) rfl).symm
/-- The contents after step 86. -/
def val87 (V0 : Valuation τ sig (Elt Ideal)) : Valuation τ sig (Elt Ideal) := after (stepOps86 (F := Ideal)) (val86 V0)
theorem val87_main_arg0 (V0 : Valuation τ sig (Elt Ideal)) : val87 V0 (Proc.devRef .tc main_arg0) = aX V0 :=
  (after_keep _ 10 stepOps86_ok main_arg0 (by decide +kernel) (val86 V0)).trans (val86_main_arg0 V0)
theorem val87_main_arg1 (V0 : Valuation τ sig (Elt Ideal)) : val87 V0 (Proc.devRef .tc main_arg1) = aA V0 :=
  (after_keep _ 10 stepOps86_ok main_arg1 (by decide +kernel) (val86 V0)).trans (val86_main_arg1 V0)
theorem val87_main_arg2 (V0 : Valuation τ sig (Elt Ideal)) : val87 V0 (Proc.devRef .tc main_arg2) = aB V0 :=
  (after_keep _ 10 stepOps86_ok main_arg2 (by decide +kernel) (val86 V0)).trans (val86_main_arg2 V0)
theorem val87_main_arg3 (V0 : Valuation τ sig (Elt Ideal)) : val87 V0 (Proc.devRef .tc main_arg3) = aC V0 :=
  (after_keep _ 10 stepOps86_ok main_arg3 (by decide +kernel) (val86 V0)).trans (val86_main_arg3 V0)
theorem val87_main_v3 (V0 : Valuation τ sig (Elt Ideal)) : val87 V0 (Proc.devRef .tc main_v3) = decay (aA V0) :=
  (after_keep _ 10 stepOps86_ok main_v3 (by decide +kernel) (val86 V0)).trans (val86_main_v3 V0)
theorem val87_h (V0 : Valuation τ sig (Elt Ideal)) : val87 V0 (Proc.devRef .tc main_v1735) = hI (aX V0) (aA V0) (aB V0) 86 := by
  refine ((step86_val (val86 V0)).1).trans ?_
  rw [val86_main_arg0 V0, val86_main_v3 V0, val86_main_arg2 V0, val86_h V0]
  exact (hI_at (aX V0) (aA V0) (aB V0) 85 86 (by decide) rfl).symm
theorem val87_y (V0 : Valuation τ sig (Elt Ideal)) : val87 V0 (Proc.devRef .tc main_v1743) = yJ (aX V0) (aA V0) (aB V0) (aC V0) 87 := by
  refine ((step86_val (val86 V0)).2).trans ?_
  rw [val86_main_arg0 V0, val86_main_v3 V0, val86_main_arg2 V0, val86_main_arg3 V0, val86_h V0, val86_y V0]
  rw [← hI_at (aX V0) (aA V0) (aB V0) 85 86 (by decide) rfl]
  exact (yJ_at (aX V0) (aA V0) (aB V0) (aC V0) 86 87 (by decide) rfl).symm
/-- The contents after step 87. -/
def val88 (V0 : Valuation τ sig (Elt Ideal)) : Valuation τ sig (Elt Ideal) := after (stepOps87 (F := Ideal)) (val87 V0)
theorem val88_main_arg0 (V0 : Valuation τ sig (Elt Ideal)) : val88 V0 (Proc.devRef .tc main_arg0) = aX V0 :=
  (after_keep _ 10 stepOps87_ok main_arg0 (by decide +kernel) (val87 V0)).trans (val87_main_arg0 V0)
theorem val88_main_arg1 (V0 : Valuation τ sig (Elt Ideal)) : val88 V0 (Proc.devRef .tc main_arg1) = aA V0 :=
  (after_keep _ 10 stepOps87_ok main_arg1 (by decide +kernel) (val87 V0)).trans (val87_main_arg1 V0)
theorem val88_main_arg2 (V0 : Valuation τ sig (Elt Ideal)) : val88 V0 (Proc.devRef .tc main_arg2) = aB V0 :=
  (after_keep _ 10 stepOps87_ok main_arg2 (by decide +kernel) (val87 V0)).trans (val87_main_arg2 V0)
theorem val88_main_arg3 (V0 : Valuation τ sig (Elt Ideal)) : val88 V0 (Proc.devRef .tc main_arg3) = aC V0 :=
  (after_keep _ 10 stepOps87_ok main_arg3 (by decide +kernel) (val87 V0)).trans (val87_main_arg3 V0)
theorem val88_main_v3 (V0 : Valuation τ sig (Elt Ideal)) : val88 V0 (Proc.devRef .tc main_v3) = decay (aA V0) :=
  (after_keep _ 10 stepOps87_ok main_v3 (by decide +kernel) (val87 V0)).trans (val87_main_v3 V0)
theorem val88_h (V0 : Valuation τ sig (Elt Ideal)) : val88 V0 (Proc.devRef .tc main_v1755) = hI (aX V0) (aA V0) (aB V0) 87 := by
  refine ((step87_val (val87 V0)).1).trans ?_
  rw [val87_main_arg0 V0, val87_main_v3 V0, val87_main_arg2 V0, val87_h V0]
  exact (hI_at (aX V0) (aA V0) (aB V0) 86 87 (by decide) rfl).symm
theorem val88_y (V0 : Valuation τ sig (Elt Ideal)) : val88 V0 (Proc.devRef .tc main_v1763) = yJ (aX V0) (aA V0) (aB V0) (aC V0) 88 := by
  refine ((step87_val (val87 V0)).2).trans ?_
  rw [val87_main_arg0 V0, val87_main_v3 V0, val87_main_arg2 V0, val87_main_arg3 V0, val87_h V0, val87_y V0]
  rw [← hI_at (aX V0) (aA V0) (aB V0) 86 87 (by decide) rfl]
  exact (yJ_at (aX V0) (aA V0) (aB V0) (aC V0) 87 88 (by decide) rfl).symm
/-- The contents after step 88. -/
def val89 (V0 : Valuation τ sig (Elt Ideal)) : Valuation τ sig (Elt Ideal) := after (stepOps88 (F := Ideal)) (val88 V0)
theorem val89_main_arg0 (V0 : Valuation τ sig (Elt Ideal)) : val89 V0 (Proc.devRef .tc main_arg0) = aX V0 :=
  (after_keep _ 10 stepOps88_ok main_arg0 (by decide +kernel) (val88 V0)).trans (val88_main_arg0 V0)
theorem val89_main_arg1 (V0 : Valuation τ sig (Elt Ideal)) : val89 V0 (Proc.devRef .tc main_arg1) = aA V0 :=
  (after_keep _ 10 stepOps88_ok main_arg1 (by decide +kernel) (val88 V0)).trans (val88_main_arg1 V0)
theorem val89_main_arg2 (V0 : Valuation τ sig (Elt Ideal)) : val89 V0 (Proc.devRef .tc main_arg2) = aB V0 :=
  (after_keep _ 10 stepOps88_ok main_arg2 (by decide +kernel) (val88 V0)).trans (val88_main_arg2 V0)
theorem val89_main_arg3 (V0 : Valuation τ sig (Elt Ideal)) : val89 V0 (Proc.devRef .tc main_arg3) = aC V0 :=
  (after_keep _ 10 stepOps88_ok main_arg3 (by decide +kernel) (val88 V0)).trans (val88_main_arg3 V0)
theorem val89_main_v3 (V0 : Valuation τ sig (Elt Ideal)) : val89 V0 (Proc.devRef .tc main_v3) = decay (aA V0) :=
  (after_keep _ 10 stepOps88_ok main_v3 (by decide +kernel) (val88 V0)).trans (val88_main_v3 V0)
theorem val89_h (V0 : Valuation τ sig (Elt Ideal)) : val89 V0 (Proc.devRef .tc main_v1775) = hI (aX V0) (aA V0) (aB V0) 88 := by
  refine ((step88_val (val88 V0)).1).trans ?_
  rw [val88_main_arg0 V0, val88_main_v3 V0, val88_main_arg2 V0, val88_h V0]
  exact (hI_at (aX V0) (aA V0) (aB V0) 87 88 (by decide) rfl).symm
theorem val89_y (V0 : Valuation τ sig (Elt Ideal)) : val89 V0 (Proc.devRef .tc main_v1783) = yJ (aX V0) (aA V0) (aB V0) (aC V0) 89 := by
  refine ((step88_val (val88 V0)).2).trans ?_
  rw [val88_main_arg0 V0, val88_main_v3 V0, val88_main_arg2 V0, val88_main_arg3 V0, val88_h V0, val88_y V0]
  rw [← hI_at (aX V0) (aA V0) (aB V0) 87 88 (by decide) rfl]
  exact (yJ_at (aX V0) (aA V0) (aB V0) (aC V0) 88 89 (by decide) rfl).symm
/-- The contents after step 89. -/
def val90 (V0 : Valuation τ sig (Elt Ideal)) : Valuation τ sig (Elt Ideal) := after (stepOps89 (F := Ideal)) (val89 V0)
theorem val90_main_arg0 (V0 : Valuation τ sig (Elt Ideal)) : val90 V0 (Proc.devRef .tc main_arg0) = aX V0 :=
  (after_keep _ 10 stepOps89_ok main_arg0 (by decide +kernel) (val89 V0)).trans (val89_main_arg0 V0)
theorem val90_main_arg1 (V0 : Valuation τ sig (Elt Ideal)) : val90 V0 (Proc.devRef .tc main_arg1) = aA V0 :=
  (after_keep _ 10 stepOps89_ok main_arg1 (by decide +kernel) (val89 V0)).trans (val89_main_arg1 V0)
theorem val90_main_arg2 (V0 : Valuation τ sig (Elt Ideal)) : val90 V0 (Proc.devRef .tc main_arg2) = aB V0 :=
  (after_keep _ 10 stepOps89_ok main_arg2 (by decide +kernel) (val89 V0)).trans (val89_main_arg2 V0)
theorem val90_main_arg3 (V0 : Valuation τ sig (Elt Ideal)) : val90 V0 (Proc.devRef .tc main_arg3) = aC V0 :=
  (after_keep _ 10 stepOps89_ok main_arg3 (by decide +kernel) (val89 V0)).trans (val89_main_arg3 V0)
theorem val90_main_v3 (V0 : Valuation τ sig (Elt Ideal)) : val90 V0 (Proc.devRef .tc main_v3) = decay (aA V0) :=
  (after_keep _ 10 stepOps89_ok main_v3 (by decide +kernel) (val89 V0)).trans (val89_main_v3 V0)
theorem val90_h (V0 : Valuation τ sig (Elt Ideal)) : val90 V0 (Proc.devRef .tc main_v1795) = hI (aX V0) (aA V0) (aB V0) 89 := by
  refine ((step89_val (val89 V0)).1).trans ?_
  rw [val89_main_arg0 V0, val89_main_v3 V0, val89_main_arg2 V0, val89_h V0]
  exact (hI_at (aX V0) (aA V0) (aB V0) 88 89 (by decide) rfl).symm
theorem val90_y (V0 : Valuation τ sig (Elt Ideal)) : val90 V0 (Proc.devRef .tc main_v1803) = yJ (aX V0) (aA V0) (aB V0) (aC V0) 90 := by
  refine ((step89_val (val89 V0)).2).trans ?_
  rw [val89_main_arg0 V0, val89_main_v3 V0, val89_main_arg2 V0, val89_main_arg3 V0, val89_h V0, val89_y V0]
  rw [← hI_at (aX V0) (aA V0) (aB V0) 88 89 (by decide) rfl]
  exact (yJ_at (aX V0) (aA V0) (aB V0) (aC V0) 89 90 (by decide) rfl).symm
/-- The contents after step 90. -/
def val91 (V0 : Valuation τ sig (Elt Ideal)) : Valuation τ sig (Elt Ideal) := after (stepOps90 (F := Ideal)) (val90 V0)
theorem val91_main_arg0 (V0 : Valuation τ sig (Elt Ideal)) : val91 V0 (Proc.devRef .tc main_arg0) = aX V0 :=
  (after_keep _ 10 stepOps90_ok main_arg0 (by decide +kernel) (val90 V0)).trans (val90_main_arg0 V0)
theorem val91_main_arg1 (V0 : Valuation τ sig (Elt Ideal)) : val91 V0 (Proc.devRef .tc main_arg1) = aA V0 :=
  (after_keep _ 10 stepOps90_ok main_arg1 (by decide +kernel) (val90 V0)).trans (val90_main_arg1 V0)
theorem val91_main_arg2 (V0 : Valuation τ sig (Elt Ideal)) : val91 V0 (Proc.devRef .tc main_arg2) = aB V0 :=
  (after_keep _ 10 stepOps90_ok main_arg2 (by decide +kernel) (val90 V0)).trans (val90_main_arg2 V0)
theorem val91_main_arg3 (V0 : Valuation τ sig (Elt Ideal)) : val91 V0 (Proc.devRef .tc main_arg3) = aC V0 :=
  (after_keep _ 10 stepOps90_ok main_arg3 (by decide +kernel) (val90 V0)).trans (val90_main_arg3 V0)
theorem val91_main_v3 (V0 : Valuation τ sig (Elt Ideal)) : val91 V0 (Proc.devRef .tc main_v3) = decay (aA V0) :=
  (after_keep _ 10 stepOps90_ok main_v3 (by decide +kernel) (val90 V0)).trans (val90_main_v3 V0)
theorem val91_h (V0 : Valuation τ sig (Elt Ideal)) : val91 V0 (Proc.devRef .tc main_v1815) = hI (aX V0) (aA V0) (aB V0) 90 := by
  refine ((step90_val (val90 V0)).1).trans ?_
  rw [val90_main_arg0 V0, val90_main_v3 V0, val90_main_arg2 V0, val90_h V0]
  exact (hI_at (aX V0) (aA V0) (aB V0) 89 90 (by decide) rfl).symm
theorem val91_y (V0 : Valuation τ sig (Elt Ideal)) : val91 V0 (Proc.devRef .tc main_v1823) = yJ (aX V0) (aA V0) (aB V0) (aC V0) 91 := by
  refine ((step90_val (val90 V0)).2).trans ?_
  rw [val90_main_arg0 V0, val90_main_v3 V0, val90_main_arg2 V0, val90_main_arg3 V0, val90_h V0, val90_y V0]
  rw [← hI_at (aX V0) (aA V0) (aB V0) 89 90 (by decide) rfl]
  exact (yJ_at (aX V0) (aA V0) (aB V0) (aC V0) 90 91 (by decide) rfl).symm
/-- The contents after step 91. -/
def val92 (V0 : Valuation τ sig (Elt Ideal)) : Valuation τ sig (Elt Ideal) := after (stepOps91 (F := Ideal)) (val91 V0)
theorem val92_main_arg0 (V0 : Valuation τ sig (Elt Ideal)) : val92 V0 (Proc.devRef .tc main_arg0) = aX V0 :=
  (after_keep _ 10 stepOps91_ok main_arg0 (by decide +kernel) (val91 V0)).trans (val91_main_arg0 V0)
theorem val92_main_arg1 (V0 : Valuation τ sig (Elt Ideal)) : val92 V0 (Proc.devRef .tc main_arg1) = aA V0 :=
  (after_keep _ 10 stepOps91_ok main_arg1 (by decide +kernel) (val91 V0)).trans (val91_main_arg1 V0)
theorem val92_main_arg2 (V0 : Valuation τ sig (Elt Ideal)) : val92 V0 (Proc.devRef .tc main_arg2) = aB V0 :=
  (after_keep _ 10 stepOps91_ok main_arg2 (by decide +kernel) (val91 V0)).trans (val91_main_arg2 V0)
theorem val92_main_arg3 (V0 : Valuation τ sig (Elt Ideal)) : val92 V0 (Proc.devRef .tc main_arg3) = aC V0 :=
  (after_keep _ 10 stepOps91_ok main_arg3 (by decide +kernel) (val91 V0)).trans (val91_main_arg3 V0)
theorem val92_main_v3 (V0 : Valuation τ sig (Elt Ideal)) : val92 V0 (Proc.devRef .tc main_v3) = decay (aA V0) :=
  (after_keep _ 10 stepOps91_ok main_v3 (by decide +kernel) (val91 V0)).trans (val91_main_v3 V0)
theorem val92_h (V0 : Valuation τ sig (Elt Ideal)) : val92 V0 (Proc.devRef .tc main_v1835) = hI (aX V0) (aA V0) (aB V0) 91 := by
  refine ((step91_val (val91 V0)).1).trans ?_
  rw [val91_main_arg0 V0, val91_main_v3 V0, val91_main_arg2 V0, val91_h V0]
  exact (hI_at (aX V0) (aA V0) (aB V0) 90 91 (by decide) rfl).symm
theorem val92_y (V0 : Valuation τ sig (Elt Ideal)) : val92 V0 (Proc.devRef .tc main_v1843) = yJ (aX V0) (aA V0) (aB V0) (aC V0) 92 := by
  refine ((step91_val (val91 V0)).2).trans ?_
  rw [val91_main_arg0 V0, val91_main_v3 V0, val91_main_arg2 V0, val91_main_arg3 V0, val91_h V0, val91_y V0]
  rw [← hI_at (aX V0) (aA V0) (aB V0) 90 91 (by decide) rfl]
  exact (yJ_at (aX V0) (aA V0) (aB V0) (aC V0) 91 92 (by decide) rfl).symm
/-- The contents after step 92. -/
def val93 (V0 : Valuation τ sig (Elt Ideal)) : Valuation τ sig (Elt Ideal) := after (stepOps92 (F := Ideal)) (val92 V0)
theorem val93_main_arg0 (V0 : Valuation τ sig (Elt Ideal)) : val93 V0 (Proc.devRef .tc main_arg0) = aX V0 :=
  (after_keep _ 10 stepOps92_ok main_arg0 (by decide +kernel) (val92 V0)).trans (val92_main_arg0 V0)
theorem val93_main_arg1 (V0 : Valuation τ sig (Elt Ideal)) : val93 V0 (Proc.devRef .tc main_arg1) = aA V0 :=
  (after_keep _ 10 stepOps92_ok main_arg1 (by decide +kernel) (val92 V0)).trans (val92_main_arg1 V0)
theorem val93_main_arg2 (V0 : Valuation τ sig (Elt Ideal)) : val93 V0 (Proc.devRef .tc main_arg2) = aB V0 :=
  (after_keep _ 10 stepOps92_ok main_arg2 (by decide +kernel) (val92 V0)).trans (val92_main_arg2 V0)
theorem val93_main_arg3 (V0 : Valuation τ sig (Elt Ideal)) : val93 V0 (Proc.devRef .tc main_arg3) = aC V0 :=
  (after_keep _ 10 stepOps92_ok main_arg3 (by decide +kernel) (val92 V0)).trans (val92_main_arg3 V0)
theorem val93_main_v3 (V0 : Valuation τ sig (Elt Ideal)) : val93 V0 (Proc.devRef .tc main_v3) = decay (aA V0) :=
  (after_keep _ 10 stepOps92_ok main_v3 (by decide +kernel) (val92 V0)).trans (val92_main_v3 V0)
theorem val93_h (V0 : Valuation τ sig (Elt Ideal)) : val93 V0 (Proc.devRef .tc main_v1855) = hI (aX V0) (aA V0) (aB V0) 92 := by
  refine ((step92_val (val92 V0)).1).trans ?_
  rw [val92_main_arg0 V0, val92_main_v3 V0, val92_main_arg2 V0, val92_h V0]
  exact (hI_at (aX V0) (aA V0) (aB V0) 91 92 (by decide) rfl).symm
theorem val93_y (V0 : Valuation τ sig (Elt Ideal)) : val93 V0 (Proc.devRef .tc main_v1863) = yJ (aX V0) (aA V0) (aB V0) (aC V0) 93 := by
  refine ((step92_val (val92 V0)).2).trans ?_
  rw [val92_main_arg0 V0, val92_main_v3 V0, val92_main_arg2 V0, val92_main_arg3 V0, val92_h V0, val92_y V0]
  rw [← hI_at (aX V0) (aA V0) (aB V0) 91 92 (by decide) rfl]
  exact (yJ_at (aX V0) (aA V0) (aB V0) (aC V0) 92 93 (by decide) rfl).symm
/-- The contents after step 93. -/
def val94 (V0 : Valuation τ sig (Elt Ideal)) : Valuation τ sig (Elt Ideal) := after (stepOps93 (F := Ideal)) (val93 V0)
theorem val94_main_arg0 (V0 : Valuation τ sig (Elt Ideal)) : val94 V0 (Proc.devRef .tc main_arg0) = aX V0 :=
  (after_keep _ 10 stepOps93_ok main_arg0 (by decide +kernel) (val93 V0)).trans (val93_main_arg0 V0)
theorem val94_main_arg1 (V0 : Valuation τ sig (Elt Ideal)) : val94 V0 (Proc.devRef .tc main_arg1) = aA V0 :=
  (after_keep _ 10 stepOps93_ok main_arg1 (by decide +kernel) (val93 V0)).trans (val93_main_arg1 V0)
theorem val94_main_arg2 (V0 : Valuation τ sig (Elt Ideal)) : val94 V0 (Proc.devRef .tc main_arg2) = aB V0 :=
  (after_keep _ 10 stepOps93_ok main_arg2 (by decide +kernel) (val93 V0)).trans (val93_main_arg2 V0)
theorem val94_main_arg3 (V0 : Valuation τ sig (Elt Ideal)) : val94 V0 (Proc.devRef .tc main_arg3) = aC V0 :=
  (after_keep _ 10 stepOps93_ok main_arg3 (by decide +kernel) (val93 V0)).trans (val93_main_arg3 V0)
theorem val94_main_v3 (V0 : Valuation τ sig (Elt Ideal)) : val94 V0 (Proc.devRef .tc main_v3) = decay (aA V0) :=
  (after_keep _ 10 stepOps93_ok main_v3 (by decide +kernel) (val93 V0)).trans (val93_main_v3 V0)
theorem val94_h (V0 : Valuation τ sig (Elt Ideal)) : val94 V0 (Proc.devRef .tc main_v1875) = hI (aX V0) (aA V0) (aB V0) 93 := by
  refine ((step93_val (val93 V0)).1).trans ?_
  rw [val93_main_arg0 V0, val93_main_v3 V0, val93_main_arg2 V0, val93_h V0]
  exact (hI_at (aX V0) (aA V0) (aB V0) 92 93 (by decide) rfl).symm
theorem val94_y (V0 : Valuation τ sig (Elt Ideal)) : val94 V0 (Proc.devRef .tc main_v1883) = yJ (aX V0) (aA V0) (aB V0) (aC V0) 94 := by
  refine ((step93_val (val93 V0)).2).trans ?_
  rw [val93_main_arg0 V0, val93_main_v3 V0, val93_main_arg2 V0, val93_main_arg3 V0, val93_h V0, val93_y V0]
  rw [← hI_at (aX V0) (aA V0) (aB V0) 92 93 (by decide) rfl]
  exact (yJ_at (aX V0) (aA V0) (aB V0) (aC V0) 93 94 (by decide) rfl).symm
/-- The contents after step 94. -/
def val95 (V0 : Valuation τ sig (Elt Ideal)) : Valuation τ sig (Elt Ideal) := after (stepOps94 (F := Ideal)) (val94 V0)
theorem val95_main_arg0 (V0 : Valuation τ sig (Elt Ideal)) : val95 V0 (Proc.devRef .tc main_arg0) = aX V0 :=
  (after_keep _ 10 stepOps94_ok main_arg0 (by decide +kernel) (val94 V0)).trans (val94_main_arg0 V0)
theorem val95_main_arg1 (V0 : Valuation τ sig (Elt Ideal)) : val95 V0 (Proc.devRef .tc main_arg1) = aA V0 :=
  (after_keep _ 10 stepOps94_ok main_arg1 (by decide +kernel) (val94 V0)).trans (val94_main_arg1 V0)
theorem val95_main_arg2 (V0 : Valuation τ sig (Elt Ideal)) : val95 V0 (Proc.devRef .tc main_arg2) = aB V0 :=
  (after_keep _ 10 stepOps94_ok main_arg2 (by decide +kernel) (val94 V0)).trans (val94_main_arg2 V0)
theorem val95_main_arg3 (V0 : Valuation τ sig (Elt Ideal)) : val95 V0 (Proc.devRef .tc main_arg3) = aC V0 :=
  (after_keep _ 10 stepOps94_ok main_arg3 (by decide +kernel) (val94 V0)).trans (val94_main_arg3 V0)
theorem val95_main_v3 (V0 : Valuation τ sig (Elt Ideal)) : val95 V0 (Proc.devRef .tc main_v3) = decay (aA V0) :=
  (after_keep _ 10 stepOps94_ok main_v3 (by decide +kernel) (val94 V0)).trans (val94_main_v3 V0)
theorem val95_h (V0 : Valuation τ sig (Elt Ideal)) : val95 V0 (Proc.devRef .tc main_v1895) = hI (aX V0) (aA V0) (aB V0) 94 := by
  refine ((step94_val (val94 V0)).1).trans ?_
  rw [val94_main_arg0 V0, val94_main_v3 V0, val94_main_arg2 V0, val94_h V0]
  exact (hI_at (aX V0) (aA V0) (aB V0) 93 94 (by decide) rfl).symm
theorem val95_y (V0 : Valuation τ sig (Elt Ideal)) : val95 V0 (Proc.devRef .tc main_v1903) = yJ (aX V0) (aA V0) (aB V0) (aC V0) 95 := by
  refine ((step94_val (val94 V0)).2).trans ?_
  rw [val94_main_arg0 V0, val94_main_v3 V0, val94_main_arg2 V0, val94_main_arg3 V0, val94_h V0, val94_y V0]
  rw [← hI_at (aX V0) (aA V0) (aB V0) 93 94 (by decide) rfl]
  exact (yJ_at (aX V0) (aA V0) (aB V0) (aC V0) 94 95 (by decide) rfl).symm
/-- The contents after step 95. -/
def val96 (V0 : Valuation τ sig (Elt Ideal)) : Valuation τ sig (Elt Ideal) := after (stepOps95 (F := Ideal)) (val95 V0)
theorem val96_main_arg0 (V0 : Valuation τ sig (Elt Ideal)) : val96 V0 (Proc.devRef .tc main_arg0) = aX V0 :=
  (after_keep _ 10 stepOps95_ok main_arg0 (by decide +kernel) (val95 V0)).trans (val95_main_arg0 V0)
theorem val96_main_arg1 (V0 : Valuation τ sig (Elt Ideal)) : val96 V0 (Proc.devRef .tc main_arg1) = aA V0 :=
  (after_keep _ 10 stepOps95_ok main_arg1 (by decide +kernel) (val95 V0)).trans (val95_main_arg1 V0)
theorem val96_main_arg2 (V0 : Valuation τ sig (Elt Ideal)) : val96 V0 (Proc.devRef .tc main_arg2) = aB V0 :=
  (after_keep _ 10 stepOps95_ok main_arg2 (by decide +kernel) (val95 V0)).trans (val95_main_arg2 V0)
theorem val96_main_arg3 (V0 : Valuation τ sig (Elt Ideal)) : val96 V0 (Proc.devRef .tc main_arg3) = aC V0 :=
  (after_keep _ 10 stepOps95_ok main_arg3 (by decide +kernel) (val95 V0)).trans (val95_main_arg3 V0)
theorem val96_main_v3 (V0 : Valuation τ sig (Elt Ideal)) : val96 V0 (Proc.devRef .tc main_v3) = decay (aA V0) :=
  (after_keep _ 10 stepOps95_ok main_v3 (by decide +kernel) (val95 V0)).trans (val95_main_v3 V0)
theorem val96_h (V0 : Valuation τ sig (Elt Ideal)) : val96 V0 (Proc.devRef .tc main_v1915) = hI (aX V0) (aA V0) (aB V0) 95 := by
  refine ((step95_val (val95 V0)).1).trans ?_
  rw [val95_main_arg0 V0, val95_main_v3 V0, val95_main_arg2 V0, val95_h V0]
  exact (hI_at (aX V0) (aA V0) (aB V0) 94 95 (by decide) rfl).symm
theorem val96_y (V0 : Valuation τ sig (Elt Ideal)) : val96 V0 (Proc.devRef .tc main_v1923) = yJ (aX V0) (aA V0) (aB V0) (aC V0) 96 := by
  refine ((step95_val (val95 V0)).2).trans ?_
  rw [val95_main_arg0 V0, val95_main_v3 V0, val95_main_arg2 V0, val95_main_arg3 V0, val95_h V0, val95_y V0]
  rw [← hI_at (aX V0) (aA V0) (aB V0) 94 95 (by decide) rfl]
  exact (yJ_at (aX V0) (aA V0) (aB V0) (aC V0) 95 96 (by decide) rfl).symm
/-- The contents after step 96. -/
def val97 (V0 : Valuation τ sig (Elt Ideal)) : Valuation τ sig (Elt Ideal) := after (stepOps96 (F := Ideal)) (val96 V0)
theorem val97_main_arg0 (V0 : Valuation τ sig (Elt Ideal)) : val97 V0 (Proc.devRef .tc main_arg0) = aX V0 :=
  (after_keep _ 10 stepOps96_ok main_arg0 (by decide +kernel) (val96 V0)).trans (val96_main_arg0 V0)
theorem val97_main_arg1 (V0 : Valuation τ sig (Elt Ideal)) : val97 V0 (Proc.devRef .tc main_arg1) = aA V0 :=
  (after_keep _ 10 stepOps96_ok main_arg1 (by decide +kernel) (val96 V0)).trans (val96_main_arg1 V0)
theorem val97_main_arg2 (V0 : Valuation τ sig (Elt Ideal)) : val97 V0 (Proc.devRef .tc main_arg2) = aB V0 :=
  (after_keep _ 10 stepOps96_ok main_arg2 (by decide +kernel) (val96 V0)).trans (val96_main_arg2 V0)
theorem val97_main_arg3 (V0 : Valuation τ sig (Elt Ideal)) : val97 V0 (Proc.devRef .tc main_arg3) = aC V0 :=
  (after_keep _ 10 stepOps96_ok main_arg3 (by decide +kernel) (val96 V0)).trans (val96_main_arg3 V0)
theorem val97_main_v3 (V0 : Valuation τ sig (Elt Ideal)) : val97 V0 (Proc.devRef .tc main_v3) = decay (aA V0) :=
  (after_keep _ 10 stepOps96_ok main_v3 (by decide +kernel) (val96 V0)).trans (val96_main_v3 V0)
theorem val97_h (V0 : Valuation τ sig (Elt Ideal)) : val97 V0 (Proc.devRef .tc main_v1935) = hI (aX V0) (aA V0) (aB V0) 96 := by
  refine ((step96_val (val96 V0)).1).trans ?_
  rw [val96_main_arg0 V0, val96_main_v3 V0, val96_main_arg2 V0, val96_h V0]
  exact (hI_at (aX V0) (aA V0) (aB V0) 95 96 (by decide) rfl).symm
theorem val97_y (V0 : Valuation τ sig (Elt Ideal)) : val97 V0 (Proc.devRef .tc main_v1943) = yJ (aX V0) (aA V0) (aB V0) (aC V0) 97 := by
  refine ((step96_val (val96 V0)).2).trans ?_
  rw [val96_main_arg0 V0, val96_main_v3 V0, val96_main_arg2 V0, val96_main_arg3 V0, val96_h V0, val96_y V0]
  rw [← hI_at (aX V0) (aA V0) (aB V0) 95 96 (by decide) rfl]
  exact (yJ_at (aX V0) (aA V0) (aB V0) (aC V0) 96 97 (by decide) rfl).symm
/-- The contents after step 97. -/
def val98 (V0 : Valuation τ sig (Elt Ideal)) : Valuation τ sig (Elt Ideal) := after (stepOps97 (F := Ideal)) (val97 V0)
theorem val98_main_arg0 (V0 : Valuation τ sig (Elt Ideal)) : val98 V0 (Proc.devRef .tc main_arg0) = aX V0 :=
  (after_keep _ 10 stepOps97_ok main_arg0 (by decide +kernel) (val97 V0)).trans (val97_main_arg0 V0)
theorem val98_main_arg1 (V0 : Valuation τ sig (Elt Ideal)) : val98 V0 (Proc.devRef .tc main_arg1) = aA V0 :=
  (after_keep _ 10 stepOps97_ok main_arg1 (by decide +kernel) (val97 V0)).trans (val97_main_arg1 V0)
theorem val98_main_arg2 (V0 : Valuation τ sig (Elt Ideal)) : val98 V0 (Proc.devRef .tc main_arg2) = aB V0 :=
  (after_keep _ 10 stepOps97_ok main_arg2 (by decide +kernel) (val97 V0)).trans (val97_main_arg2 V0)
theorem val98_main_arg3 (V0 : Valuation τ sig (Elt Ideal)) : val98 V0 (Proc.devRef .tc main_arg3) = aC V0 :=
  (after_keep _ 10 stepOps97_ok main_arg3 (by decide +kernel) (val97 V0)).trans (val97_main_arg3 V0)
theorem val98_main_v3 (V0 : Valuation τ sig (Elt Ideal)) : val98 V0 (Proc.devRef .tc main_v3) = decay (aA V0) :=
  (after_keep _ 10 stepOps97_ok main_v3 (by decide +kernel) (val97 V0)).trans (val97_main_v3 V0)
theorem val98_h (V0 : Valuation τ sig (Elt Ideal)) : val98 V0 (Proc.devRef .tc main_v1955) = hI (aX V0) (aA V0) (aB V0) 97 := by
  refine ((step97_val (val97 V0)).1).trans ?_
  rw [val97_main_arg0 V0, val97_main_v3 V0, val97_main_arg2 V0, val97_h V0]
  exact (hI_at (aX V0) (aA V0) (aB V0) 96 97 (by decide) rfl).symm
theorem val98_y (V0 : Valuation τ sig (Elt Ideal)) : val98 V0 (Proc.devRef .tc main_v1963) = yJ (aX V0) (aA V0) (aB V0) (aC V0) 98 := by
  refine ((step97_val (val97 V0)).2).trans ?_
  rw [val97_main_arg0 V0, val97_main_v3 V0, val97_main_arg2 V0, val97_main_arg3 V0, val97_h V0, val97_y V0]
  rw [← hI_at (aX V0) (aA V0) (aB V0) 96 97 (by decide) rfl]
  exact (yJ_at (aX V0) (aA V0) (aB V0) (aC V0) 97 98 (by decide) rfl).symm
/-- The contents after step 98. -/
def val99 (V0 : Valuation τ sig (Elt Ideal)) : Valuation τ sig (Elt Ideal) := after (stepOps98 (F := Ideal)) (val98 V0)
theorem val99_main_arg0 (V0 : Valuation τ sig (Elt Ideal)) : val99 V0 (Proc.devRef .tc main_arg0) = aX V0 :=
  (after_keep _ 10 stepOps98_ok main_arg0 (by decide +kernel) (val98 V0)).trans (val98_main_arg0 V0)
theorem val99_main_arg1 (V0 : Valuation τ sig (Elt Ideal)) : val99 V0 (Proc.devRef .tc main_arg1) = aA V0 :=
  (after_keep _ 10 stepOps98_ok main_arg1 (by decide +kernel) (val98 V0)).trans (val98_main_arg1 V0)
theorem val99_main_arg2 (V0 : Valuation τ sig (Elt Ideal)) : val99 V0 (Proc.devRef .tc main_arg2) = aB V0 :=
  (after_keep _ 10 stepOps98_ok main_arg2 (by decide +kernel) (val98 V0)).trans (val98_main_arg2 V0)
theorem val99_main_arg3 (V0 : Valuation τ sig (Elt Ideal)) : val99 V0 (Proc.devRef .tc main_arg3) = aC V0 :=
  (after_keep _ 10 stepOps98_ok main_arg3 (by decide +kernel) (val98 V0)).trans (val98_main_arg3 V0)
theorem val99_main_v3 (V0 : Valuation τ sig (Elt Ideal)) : val99 V0 (Proc.devRef .tc main_v3) = decay (aA V0) :=
  (after_keep _ 10 stepOps98_ok main_v3 (by decide +kernel) (val98 V0)).trans (val98_main_v3 V0)
theorem val99_h (V0 : Valuation τ sig (Elt Ideal)) : val99 V0 (Proc.devRef .tc main_v1975) = hI (aX V0) (aA V0) (aB V0) 98 := by
  refine ((step98_val (val98 V0)).1).trans ?_
  rw [val98_main_arg0 V0, val98_main_v3 V0, val98_main_arg2 V0, val98_h V0]
  exact (hI_at (aX V0) (aA V0) (aB V0) 97 98 (by decide) rfl).symm
theorem val99_y (V0 : Valuation τ sig (Elt Ideal)) : val99 V0 (Proc.devRef .tc main_v1983) = yJ (aX V0) (aA V0) (aB V0) (aC V0) 99 := by
  refine ((step98_val (val98 V0)).2).trans ?_
  rw [val98_main_arg0 V0, val98_main_v3 V0, val98_main_arg2 V0, val98_main_arg3 V0, val98_h V0, val98_y V0]
  rw [← hI_at (aX V0) (aA V0) (aB V0) 97 98 (by decide) rfl]
  exact (yJ_at (aX V0) (aA V0) (aB V0) (aC V0) 98 99 (by decide) rfl).symm
/-- The contents after step 99. -/
def val100 (V0 : Valuation τ sig (Elt Ideal)) : Valuation τ sig (Elt Ideal) := after (stepOps99 (F := Ideal)) (val99 V0)
theorem val100_main_arg0 (V0 : Valuation τ sig (Elt Ideal)) : val100 V0 (Proc.devRef .tc main_arg0) = aX V0 :=
  (after_keep _ 10 stepOps99_ok main_arg0 (by decide +kernel) (val99 V0)).trans (val99_main_arg0 V0)
theorem val100_main_arg1 (V0 : Valuation τ sig (Elt Ideal)) : val100 V0 (Proc.devRef .tc main_arg1) = aA V0 :=
  (after_keep _ 10 stepOps99_ok main_arg1 (by decide +kernel) (val99 V0)).trans (val99_main_arg1 V0)
theorem val100_main_arg2 (V0 : Valuation τ sig (Elt Ideal)) : val100 V0 (Proc.devRef .tc main_arg2) = aB V0 :=
  (after_keep _ 10 stepOps99_ok main_arg2 (by decide +kernel) (val99 V0)).trans (val99_main_arg2 V0)
theorem val100_main_arg3 (V0 : Valuation τ sig (Elt Ideal)) : val100 V0 (Proc.devRef .tc main_arg3) = aC V0 :=
  (after_keep _ 10 stepOps99_ok main_arg3 (by decide +kernel) (val99 V0)).trans (val99_main_arg3 V0)
theorem val100_main_v3 (V0 : Valuation τ sig (Elt Ideal)) : val100 V0 (Proc.devRef .tc main_v3) = decay (aA V0) :=
  (after_keep _ 10 stepOps99_ok main_v3 (by decide +kernel) (val99 V0)).trans (val99_main_v3 V0)
theorem val100_h (V0 : Valuation τ sig (Elt Ideal)) : val100 V0 (Proc.devRef .tc main_v1995) = hI (aX V0) (aA V0) (aB V0) 99 := by
  refine ((step99_val (val99 V0)).1).trans ?_
  rw [val99_main_arg0 V0, val99_main_v3 V0, val99_main_arg2 V0, val99_h V0]
  exact (hI_at (aX V0) (aA V0) (aB V0) 98 99 (by decide) rfl).symm
theorem val100_y (V0 : Valuation τ sig (Elt Ideal)) : val100 V0 (Proc.devRef .tc main_v2003) = yJ (aX V0) (aA V0) (aB V0) (aC V0) 100 := by
  refine ((step99_val (val99 V0)).2).trans ?_
  rw [val99_main_arg0 V0, val99_main_v3 V0, val99_main_arg2 V0, val99_main_arg3 V0, val99_h V0, val99_y V0]
  rw [← hI_at (aX V0) (aA V0) (aB V0) 98 99 (by decide) rfl]
  exact (yJ_at (aX V0) (aA V0) (aB V0) (aC V0) 99 100 (by decide) rfl).symm
/-- The contents after step 100. -/
def val101 (V0 : Valuation τ sig (Elt Ideal)) : Valuation τ sig (Elt Ideal) := after (stepOps100 (F := Ideal)) (val100 V0)
theorem val101_main_arg0 (V0 : Valuation τ sig (Elt Ideal)) : val101 V0 (Proc.devRef .tc main_arg0) = aX V0 :=
  (after_keep _ 10 stepOps100_ok main_arg0 (by decide +kernel) (val100 V0)).trans (val100_main_arg0 V0)
theorem val101_main_arg1 (V0 : Valuation τ sig (Elt Ideal)) : val101 V0 (Proc.devRef .tc main_arg1) = aA V0 :=
  (after_keep _ 10 stepOps100_ok main_arg1 (by decide +kernel) (val100 V0)).trans (val100_main_arg1 V0)
theorem val101_main_arg2 (V0 : Valuation τ sig (Elt Ideal)) : val101 V0 (Proc.devRef .tc main_arg2) = aB V0 :=
  (after_keep _ 10 stepOps100_ok main_arg2 (by decide +kernel) (val100 V0)).trans (val100_main_arg2 V0)
theorem val101_main_arg3 (V0 : Valuation τ sig (Elt Ideal)) : val101 V0 (Proc.devRef .tc main_arg3) = aC V0 :=
  (after_keep _ 10 stepOps100_ok main_arg3 (by decide +kernel) (val100 V0)).trans (val100_main_arg3 V0)
theorem val101_main_v3 (V0 : Valuation τ sig (Elt Ideal)) : val101 V0 (Proc.devRef .tc main_v3) = decay (aA V0) :=
  (after_keep _ 10 stepOps100_ok main_v3 (by decide +kernel) (val100 V0)).trans (val100_main_v3 V0)
theorem val101_h (V0 : Valuation τ sig (Elt Ideal)) : val101 V0 (Proc.devRef .tc main_v2015) = hI (aX V0) (aA V0) (aB V0) 100 := by
  refine ((step100_val (val100 V0)).1).trans ?_
  rw [val100_main_arg0 V0, val100_main_v3 V0, val100_main_arg2 V0, val100_h V0]
  exact (hI_at (aX V0) (aA V0) (aB V0) 99 100 (by decide) rfl).symm
theorem val101_y (V0 : Valuation τ sig (Elt Ideal)) : val101 V0 (Proc.devRef .tc main_v2023) = yJ (aX V0) (aA V0) (aB V0) (aC V0) 101 := by
  refine ((step100_val (val100 V0)).2).trans ?_
  rw [val100_main_arg0 V0, val100_main_v3 V0, val100_main_arg2 V0, val100_main_arg3 V0, val100_h V0, val100_y V0]
  rw [← hI_at (aX V0) (aA V0) (aB V0) 99 100 (by decide) rfl]
  exact (yJ_at (aX V0) (aA V0) (aB V0) (aC V0) 100 101 (by decide) rfl).symm
/-- The contents after step 101. -/
def val102 (V0 : Valuation τ sig (Elt Ideal)) : Valuation τ sig (Elt Ideal) := after (stepOps101 (F := Ideal)) (val101 V0)
theorem val102_main_arg0 (V0 : Valuation τ sig (Elt Ideal)) : val102 V0 (Proc.devRef .tc main_arg0) = aX V0 :=
  (after_keep _ 10 stepOps101_ok main_arg0 (by decide +kernel) (val101 V0)).trans (val101_main_arg0 V0)
theorem val102_main_arg1 (V0 : Valuation τ sig (Elt Ideal)) : val102 V0 (Proc.devRef .tc main_arg1) = aA V0 :=
  (after_keep _ 10 stepOps101_ok main_arg1 (by decide +kernel) (val101 V0)).trans (val101_main_arg1 V0)
theorem val102_main_arg2 (V0 : Valuation τ sig (Elt Ideal)) : val102 V0 (Proc.devRef .tc main_arg2) = aB V0 :=
  (after_keep _ 10 stepOps101_ok main_arg2 (by decide +kernel) (val101 V0)).trans (val101_main_arg2 V0)
theorem val102_main_arg3 (V0 : Valuation τ sig (Elt Ideal)) : val102 V0 (Proc.devRef .tc main_arg3) = aC V0 :=
  (after_keep _ 10 stepOps101_ok main_arg3 (by decide +kernel) (val101 V0)).trans (val101_main_arg3 V0)
theorem val102_main_v3 (V0 : Valuation τ sig (Elt Ideal)) : val102 V0 (Proc.devRef .tc main_v3) = decay (aA V0) :=
  (after_keep _ 10 stepOps101_ok main_v3 (by decide +kernel) (val101 V0)).trans (val101_main_v3 V0)
theorem val102_h (V0 : Valuation τ sig (Elt Ideal)) : val102 V0 (Proc.devRef .tc main_v2035) = hI (aX V0) (aA V0) (aB V0) 101 := by
  refine ((step101_val (val101 V0)).1).trans ?_
  rw [val101_main_arg0 V0, val101_main_v3 V0, val101_main_arg2 V0, val101_h V0]
  exact (hI_at (aX V0) (aA V0) (aB V0) 100 101 (by decide) rfl).symm
theorem val102_y (V0 : Valuation τ sig (Elt Ideal)) : val102 V0 (Proc.devRef .tc main_v2043) = yJ (aX V0) (aA V0) (aB V0) (aC V0) 102 := by
  refine ((step101_val (val101 V0)).2).trans ?_
  rw [val101_main_arg0 V0, val101_main_v3 V0, val101_main_arg2 V0, val101_main_arg3 V0, val101_h V0, val101_y V0]
  rw [← hI_at (aX V0) (aA V0) (aB V0) 100 101 (by decide) rfl]
  exact (yJ_at (aX V0) (aA V0) (aB V0) (aC V0) 101 102 (by decide) rfl).symm
/-- The contents after step 102. -/
def val103 (V0 : Valuation τ sig (Elt Ideal)) : Valuation τ sig (Elt Ideal) := after (stepOps102 (F := Ideal)) (val102 V0)
theorem val103_main_arg0 (V0 : Valuation τ sig (Elt Ideal)) : val103 V0 (Proc.devRef .tc main_arg0) = aX V0 :=
  (after_keep _ 10 stepOps102_ok main_arg0 (by decide +kernel) (val102 V0)).trans (val102_main_arg0 V0)
theorem val103_main_arg1 (V0 : Valuation τ sig (Elt Ideal)) : val103 V0 (Proc.devRef .tc main_arg1) = aA V0 :=
  (after_keep _ 10 stepOps102_ok main_arg1 (by decide +kernel) (val102 V0)).trans (val102_main_arg1 V0)
theorem val103_main_arg2 (V0 : Valuation τ sig (Elt Ideal)) : val103 V0 (Proc.devRef .tc main_arg2) = aB V0 :=
  (after_keep _ 10 stepOps102_ok main_arg2 (by decide +kernel) (val102 V0)).trans (val102_main_arg2 V0)
theorem val103_main_arg3 (V0 : Valuation τ sig (Elt Ideal)) : val103 V0 (Proc.devRef .tc main_arg3) = aC V0 :=
  (after_keep _ 10 stepOps102_ok main_arg3 (by decide +kernel) (val102 V0)).trans (val102_main_arg3 V0)
theorem val103_main_v3 (V0 : Valuation τ sig (Elt Ideal)) : val103 V0 (Proc.devRef .tc main_v3) = decay (aA V0) :=
  (after_keep _ 10 stepOps102_ok main_v3 (by decide +kernel) (val102 V0)).trans (val102_main_v3 V0)
theorem val103_h (V0 : Valuation τ sig (Elt Ideal)) : val103 V0 (Proc.devRef .tc main_v2055) = hI (aX V0) (aA V0) (aB V0) 102 := by
  refine ((step102_val (val102 V0)).1).trans ?_
  rw [val102_main_arg0 V0, val102_main_v3 V0, val102_main_arg2 V0, val102_h V0]
  exact (hI_at (aX V0) (aA V0) (aB V0) 101 102 (by decide) rfl).symm
theorem val103_y (V0 : Valuation τ sig (Elt Ideal)) : val103 V0 (Proc.devRef .tc main_v2063) = yJ (aX V0) (aA V0) (aB V0) (aC V0) 103 := by
  refine ((step102_val (val102 V0)).2).trans ?_
  rw [val102_main_arg0 V0, val102_main_v3 V0, val102_main_arg2 V0, val102_main_arg3 V0, val102_h V0, val102_y V0]
  rw [← hI_at (aX V0) (aA V0) (aB V0) 101 102 (by decide) rfl]
  exact (yJ_at (aX V0) (aA V0) (aB V0) (aC V0) 102 103 (by decide) rfl).symm
/-- The contents after step 103. -/
def val104 (V0 : Valuation τ sig (Elt Ideal)) : Valuation τ sig (Elt Ideal) := after (stepOps103 (F := Ideal)) (val103 V0)
theorem val104_main_arg0 (V0 : Valuation τ sig (Elt Ideal)) : val104 V0 (Proc.devRef .tc main_arg0) = aX V0 :=
  (after_keep _ 10 stepOps103_ok main_arg0 (by decide +kernel) (val103 V0)).trans (val103_main_arg0 V0)
theorem val104_main_arg1 (V0 : Valuation τ sig (Elt Ideal)) : val104 V0 (Proc.devRef .tc main_arg1) = aA V0 :=
  (after_keep _ 10 stepOps103_ok main_arg1 (by decide +kernel) (val103 V0)).trans (val103_main_arg1 V0)
theorem val104_main_arg2 (V0 : Valuation τ sig (Elt Ideal)) : val104 V0 (Proc.devRef .tc main_arg2) = aB V0 :=
  (after_keep _ 10 stepOps103_ok main_arg2 (by decide +kernel) (val103 V0)).trans (val103_main_arg2 V0)
theorem val104_main_arg3 (V0 : Valuation τ sig (Elt Ideal)) : val104 V0 (Proc.devRef .tc main_arg3) = aC V0 :=
  (after_keep _ 10 stepOps103_ok main_arg3 (by decide +kernel) (val103 V0)).trans (val103_main_arg3 V0)
theorem val104_main_v3 (V0 : Valuation τ sig (Elt Ideal)) : val104 V0 (Proc.devRef .tc main_v3) = decay (aA V0) :=
  (after_keep _ 10 stepOps103_ok main_v3 (by decide +kernel) (val103 V0)).trans (val103_main_v3 V0)
theorem val104_h (V0 : Valuation τ sig (Elt Ideal)) : val104 V0 (Proc.devRef .tc main_v2075) = hI (aX V0) (aA V0) (aB V0) 103 := by
  refine ((step103_val (val103 V0)).1).trans ?_
  rw [val103_main_arg0 V0, val103_main_v3 V0, val103_main_arg2 V0, val103_h V0]
  exact (hI_at (aX V0) (aA V0) (aB V0) 102 103 (by decide) rfl).symm
theorem val104_y (V0 : Valuation τ sig (Elt Ideal)) : val104 V0 (Proc.devRef .tc main_v2083) = yJ (aX V0) (aA V0) (aB V0) (aC V0) 104 := by
  refine ((step103_val (val103 V0)).2).trans ?_
  rw [val103_main_arg0 V0, val103_main_v3 V0, val103_main_arg2 V0, val103_main_arg3 V0, val103_h V0, val103_y V0]
  rw [← hI_at (aX V0) (aA V0) (aB V0) 102 103 (by decide) rfl]
  exact (yJ_at (aX V0) (aA V0) (aB V0) (aC V0) 103 104 (by decide) rfl).symm
/-- The contents after step 104. -/
def val105 (V0 : Valuation τ sig (Elt Ideal)) : Valuation τ sig (Elt Ideal) := after (stepOps104 (F := Ideal)) (val104 V0)
theorem val105_main_arg0 (V0 : Valuation τ sig (Elt Ideal)) : val105 V0 (Proc.devRef .tc main_arg0) = aX V0 :=
  (after_keep _ 10 stepOps104_ok main_arg0 (by decide +kernel) (val104 V0)).trans (val104_main_arg0 V0)
theorem val105_main_arg1 (V0 : Valuation τ sig (Elt Ideal)) : val105 V0 (Proc.devRef .tc main_arg1) = aA V0 :=
  (after_keep _ 10 stepOps104_ok main_arg1 (by decide +kernel) (val104 V0)).trans (val104_main_arg1 V0)
theorem val105_main_arg2 (V0 : Valuation τ sig (Elt Ideal)) : val105 V0 (Proc.devRef .tc main_arg2) = aB V0 :=
  (after_keep _ 10 stepOps104_ok main_arg2 (by decide +kernel) (val104 V0)).trans (val104_main_arg2 V0)
theorem val105_main_arg3 (V0 : Valuation τ sig (Elt Ideal)) : val105 V0 (Proc.devRef .tc main_arg3) = aC V0 :=
  (after_keep _ 10 stepOps104_ok main_arg3 (by decide +kernel) (val104 V0)).trans (val104_main_arg3 V0)
theorem val105_main_v3 (V0 : Valuation τ sig (Elt Ideal)) : val105 V0 (Proc.devRef .tc main_v3) = decay (aA V0) :=
  (after_keep _ 10 stepOps104_ok main_v3 (by decide +kernel) (val104 V0)).trans (val104_main_v3 V0)
theorem val105_h (V0 : Valuation τ sig (Elt Ideal)) : val105 V0 (Proc.devRef .tc main_v2095) = hI (aX V0) (aA V0) (aB V0) 104 := by
  refine ((step104_val (val104 V0)).1).trans ?_
  rw [val104_main_arg0 V0, val104_main_v3 V0, val104_main_arg2 V0, val104_h V0]
  exact (hI_at (aX V0) (aA V0) (aB V0) 103 104 (by decide) rfl).symm
theorem val105_y (V0 : Valuation τ sig (Elt Ideal)) : val105 V0 (Proc.devRef .tc main_v2103) = yJ (aX V0) (aA V0) (aB V0) (aC V0) 105 := by
  refine ((step104_val (val104 V0)).2).trans ?_
  rw [val104_main_arg0 V0, val104_main_v3 V0, val104_main_arg2 V0, val104_main_arg3 V0, val104_h V0, val104_y V0]
  rw [← hI_at (aX V0) (aA V0) (aB V0) 103 104 (by decide) rfl]
  exact (yJ_at (aX V0) (aA V0) (aB V0) (aC V0) 104 105 (by decide) rfl).symm
/-- The contents after step 105. -/
def val106 (V0 : Valuation τ sig (Elt Ideal)) : Valuation τ sig (Elt Ideal) := after (stepOps105 (F := Ideal)) (val105 V0)
theorem val106_main_arg0 (V0 : Valuation τ sig (Elt Ideal)) : val106 V0 (Proc.devRef .tc main_arg0) = aX V0 :=
  (after_keep _ 10 stepOps105_ok main_arg0 (by decide +kernel) (val105 V0)).trans (val105_main_arg0 V0)
theorem val106_main_arg1 (V0 : Valuation τ sig (Elt Ideal)) : val106 V0 (Proc.devRef .tc main_arg1) = aA V0 :=
  (after_keep _ 10 stepOps105_ok main_arg1 (by decide +kernel) (val105 V0)).trans (val105_main_arg1 V0)
theorem val106_main_arg2 (V0 : Valuation τ sig (Elt Ideal)) : val106 V0 (Proc.devRef .tc main_arg2) = aB V0 :=
  (after_keep _ 10 stepOps105_ok main_arg2 (by decide +kernel) (val105 V0)).trans (val105_main_arg2 V0)
theorem val106_main_arg3 (V0 : Valuation τ sig (Elt Ideal)) : val106 V0 (Proc.devRef .tc main_arg3) = aC V0 :=
  (after_keep _ 10 stepOps105_ok main_arg3 (by decide +kernel) (val105 V0)).trans (val105_main_arg3 V0)
theorem val106_main_v3 (V0 : Valuation τ sig (Elt Ideal)) : val106 V0 (Proc.devRef .tc main_v3) = decay (aA V0) :=
  (after_keep _ 10 stepOps105_ok main_v3 (by decide +kernel) (val105 V0)).trans (val105_main_v3 V0)
theorem val106_h (V0 : Valuation τ sig (Elt Ideal)) : val106 V0 (Proc.devRef .tc main_v2115) = hI (aX V0) (aA V0) (aB V0) 105 := by
  refine ((step105_val (val105 V0)).1).trans ?_
  rw [val105_main_arg0 V0, val105_main_v3 V0, val105_main_arg2 V0, val105_h V0]
  exact (hI_at (aX V0) (aA V0) (aB V0) 104 105 (by decide) rfl).symm
theorem val106_y (V0 : Valuation τ sig (Elt Ideal)) : val106 V0 (Proc.devRef .tc main_v2123) = yJ (aX V0) (aA V0) (aB V0) (aC V0) 106 := by
  refine ((step105_val (val105 V0)).2).trans ?_
  rw [val105_main_arg0 V0, val105_main_v3 V0, val105_main_arg2 V0, val105_main_arg3 V0, val105_h V0, val105_y V0]
  rw [← hI_at (aX V0) (aA V0) (aB V0) 104 105 (by decide) rfl]
  exact (yJ_at (aX V0) (aA V0) (aB V0) (aC V0) 105 106 (by decide) rfl).symm
/-- The contents after step 106. -/
def val107 (V0 : Valuation τ sig (Elt Ideal)) : Valuation τ sig (Elt Ideal) := after (stepOps106 (F := Ideal)) (val106 V0)
theorem val107_main_arg0 (V0 : Valuation τ sig (Elt Ideal)) : val107 V0 (Proc.devRef .tc main_arg0) = aX V0 :=
  (after_keep _ 10 stepOps106_ok main_arg0 (by decide +kernel) (val106 V0)).trans (val106_main_arg0 V0)
theorem val107_main_arg1 (V0 : Valuation τ sig (Elt Ideal)) : val107 V0 (Proc.devRef .tc main_arg1) = aA V0 :=
  (after_keep _ 10 stepOps106_ok main_arg1 (by decide +kernel) (val106 V0)).trans (val106_main_arg1 V0)
theorem val107_main_arg2 (V0 : Valuation τ sig (Elt Ideal)) : val107 V0 (Proc.devRef .tc main_arg2) = aB V0 :=
  (after_keep _ 10 stepOps106_ok main_arg2 (by decide +kernel) (val106 V0)).trans (val106_main_arg2 V0)
theorem val107_main_arg3 (V0 : Valuation τ sig (Elt Ideal)) : val107 V0 (Proc.devRef .tc main_arg3) = aC V0 :=
  (after_keep _ 10 stepOps106_ok main_arg3 (by decide +kernel) (val106 V0)).trans (val106_main_arg3 V0)
theorem val107_main_v3 (V0 : Valuation τ sig (Elt Ideal)) : val107 V0 (Proc.devRef .tc main_v3) = decay (aA V0) :=
  (after_keep _ 10 stepOps106_ok main_v3 (by decide +kernel) (val106 V0)).trans (val106_main_v3 V0)
theorem val107_h (V0 : Valuation τ sig (Elt Ideal)) : val107 V0 (Proc.devRef .tc main_v2135) = hI (aX V0) (aA V0) (aB V0) 106 := by
  refine ((step106_val (val106 V0)).1).trans ?_
  rw [val106_main_arg0 V0, val106_main_v3 V0, val106_main_arg2 V0, val106_h V0]
  exact (hI_at (aX V0) (aA V0) (aB V0) 105 106 (by decide) rfl).symm
theorem val107_y (V0 : Valuation τ sig (Elt Ideal)) : val107 V0 (Proc.devRef .tc main_v2143) = yJ (aX V0) (aA V0) (aB V0) (aC V0) 107 := by
  refine ((step106_val (val106 V0)).2).trans ?_
  rw [val106_main_arg0 V0, val106_main_v3 V0, val106_main_arg2 V0, val106_main_arg3 V0, val106_h V0, val106_y V0]
  rw [← hI_at (aX V0) (aA V0) (aB V0) 105 106 (by decide) rfl]
  exact (yJ_at (aX V0) (aA V0) (aB V0) (aC V0) 106 107 (by decide) rfl).symm
/-- The contents after step 107. -/
def val108 (V0 : Valuation τ sig (Elt Ideal)) : Valuation τ sig (Elt Ideal) := after (stepOps107 (F := Ideal)) (val107 V0)
theorem val108_main_arg0 (V0 : Valuation τ sig (Elt Ideal)) : val108 V0 (Proc.devRef .tc main_arg0) = aX V0 :=
  (after_keep _ 10 stepOps107_ok main_arg0 (by decide +kernel) (val107 V0)).trans (val107_main_arg0 V0)
theorem val108_main_arg1 (V0 : Valuation τ sig (Elt Ideal)) : val108 V0 (Proc.devRef .tc main_arg1) = aA V0 :=
  (after_keep _ 10 stepOps107_ok main_arg1 (by decide +kernel) (val107 V0)).trans (val107_main_arg1 V0)
theorem val108_main_arg2 (V0 : Valuation τ sig (Elt Ideal)) : val108 V0 (Proc.devRef .tc main_arg2) = aB V0 :=
  (after_keep _ 10 stepOps107_ok main_arg2 (by decide +kernel) (val107 V0)).trans (val107_main_arg2 V0)
theorem val108_main_arg3 (V0 : Valuation τ sig (Elt Ideal)) : val108 V0 (Proc.devRef .tc main_arg3) = aC V0 :=
  (after_keep _ 10 stepOps107_ok main_arg3 (by decide +kernel) (val107 V0)).trans (val107_main_arg3 V0)
theorem val108_main_v3 (V0 : Valuation τ sig (Elt Ideal)) : val108 V0 (Proc.devRef .tc main_v3) = decay (aA V0) :=
  (after_keep _ 10 stepOps107_ok main_v3 (by decide +kernel) (val107 V0)).trans (val107_main_v3 V0)
theorem val108_h (V0 : Valuation τ sig (Elt Ideal)) : val108 V0 (Proc.devRef .tc main_v2155) = hI (aX V0) (aA V0) (aB V0) 107 := by
  refine ((step107_val (val107 V0)).1).trans ?_
  rw [val107_main_arg0 V0, val107_main_v3 V0, val107_main_arg2 V0, val107_h V0]
  exact (hI_at (aX V0) (aA V0) (aB V0) 106 107 (by decide) rfl).symm
theorem val108_y (V0 : Valuation τ sig (Elt Ideal)) : val108 V0 (Proc.devRef .tc main_v2163) = yJ (aX V0) (aA V0) (aB V0) (aC V0) 108 := by
  refine ((step107_val (val107 V0)).2).trans ?_
  rw [val107_main_arg0 V0, val107_main_v3 V0, val107_main_arg2 V0, val107_main_arg3 V0, val107_h V0, val107_y V0]
  rw [← hI_at (aX V0) (aA V0) (aB V0) 106 107 (by decide) rfl]
  exact (yJ_at (aX V0) (aA V0) (aB V0) (aC V0) 107 108 (by decide) rfl).symm
/-- The contents after step 108. -/
def val109 (V0 : Valuation τ sig (Elt Ideal)) : Valuation τ sig (Elt Ideal) := after (stepOps108 (F := Ideal)) (val108 V0)
theorem val109_main_arg0 (V0 : Valuation τ sig (Elt Ideal)) : val109 V0 (Proc.devRef .tc main_arg0) = aX V0 :=
  (after_keep _ 10 stepOps108_ok main_arg0 (by decide +kernel) (val108 V0)).trans (val108_main_arg0 V0)
theorem val109_main_arg1 (V0 : Valuation τ sig (Elt Ideal)) : val109 V0 (Proc.devRef .tc main_arg1) = aA V0 :=
  (after_keep _ 10 stepOps108_ok main_arg1 (by decide +kernel) (val108 V0)).trans (val108_main_arg1 V0)
theorem val109_main_arg2 (V0 : Valuation τ sig (Elt Ideal)) : val109 V0 (Proc.devRef .tc main_arg2) = aB V0 :=
  (after_keep _ 10 stepOps108_ok main_arg2 (by decide +kernel) (val108 V0)).trans (val108_main_arg2 V0)
theorem val109_main_arg3 (V0 : Valuation τ sig (Elt Ideal)) : val109 V0 (Proc.devRef .tc main_arg3) = aC V0 :=
  (after_keep _ 10 stepOps108_ok main_arg3 (by decide +kernel) (val108 V0)).trans (val108_main_arg3 V0)
theorem val109_main_v3 (V0 : Valuation τ sig (Elt Ideal)) : val109 V0 (Proc.devRef .tc main_v3) = decay (aA V0) :=
  (after_keep _ 10 stepOps108_ok main_v3 (by decide +kernel) (val108 V0)).trans (val108_main_v3 V0)
theorem val109_h (V0 : Valuation τ sig (Elt Ideal)) : val109 V0 (Proc.devRef .tc main_v2175) = hI (aX V0) (aA V0) (aB V0) 108 := by
  refine ((step108_val (val108 V0)).1).trans ?_
  rw [val108_main_arg0 V0, val108_main_v3 V0, val108_main_arg2 V0, val108_h V0]
  exact (hI_at (aX V0) (aA V0) (aB V0) 107 108 (by decide) rfl).symm
theorem val109_y (V0 : Valuation τ sig (Elt Ideal)) : val109 V0 (Proc.devRef .tc main_v2183) = yJ (aX V0) (aA V0) (aB V0) (aC V0) 109 := by
  refine ((step108_val (val108 V0)).2).trans ?_
  rw [val108_main_arg0 V0, val108_main_v3 V0, val108_main_arg2 V0, val108_main_arg3 V0, val108_h V0, val108_y V0]
  rw [← hI_at (aX V0) (aA V0) (aB V0) 107 108 (by decide) rfl]
  exact (yJ_at (aX V0) (aA V0) (aB V0) (aC V0) 108 109 (by decide) rfl).symm
/-- The contents after step 109. -/
def val110 (V0 : Valuation τ sig (Elt Ideal)) : Valuation τ sig (Elt Ideal) := after (stepOps109 (F := Ideal)) (val109 V0)
theorem val110_main_arg0 (V0 : Valuation τ sig (Elt Ideal)) : val110 V0 (Proc.devRef .tc main_arg0) = aX V0 :=
  (after_keep _ 10 stepOps109_ok main_arg0 (by decide +kernel) (val109 V0)).trans (val109_main_arg0 V0)
theorem val110_main_arg1 (V0 : Valuation τ sig (Elt Ideal)) : val110 V0 (Proc.devRef .tc main_arg1) = aA V0 :=
  (after_keep _ 10 stepOps109_ok main_arg1 (by decide +kernel) (val109 V0)).trans (val109_main_arg1 V0)
theorem val110_main_arg2 (V0 : Valuation τ sig (Elt Ideal)) : val110 V0 (Proc.devRef .tc main_arg2) = aB V0 :=
  (after_keep _ 10 stepOps109_ok main_arg2 (by decide +kernel) (val109 V0)).trans (val109_main_arg2 V0)
theorem val110_main_arg3 (V0 : Valuation τ sig (Elt Ideal)) : val110 V0 (Proc.devRef .tc main_arg3) = aC V0 :=
  (after_keep _ 10 stepOps109_ok main_arg3 (by decide +kernel) (val109 V0)).trans (val109_main_arg3 V0)
theorem val110_main_v3 (V0 : Valuation τ sig (Elt Ideal)) : val110 V0 (Proc.devRef .tc main_v3) = decay (aA V0) :=
  (after_keep _ 10 stepOps109_ok main_v3 (by decide +kernel) (val109 V0)).trans (val109_main_v3 V0)
theorem val110_h (V0 : Valuation τ sig (Elt Ideal)) : val110 V0 (Proc.devRef .tc main_v2195) = hI (aX V0) (aA V0) (aB V0) 109 := by
  refine ((step109_val (val109 V0)).1).trans ?_
  rw [val109_main_arg0 V0, val109_main_v3 V0, val109_main_arg2 V0, val109_h V0]
  exact (hI_at (aX V0) (aA V0) (aB V0) 108 109 (by decide) rfl).symm
theorem val110_y (V0 : Valuation τ sig (Elt Ideal)) : val110 V0 (Proc.devRef .tc main_v2203) = yJ (aX V0) (aA V0) (aB V0) (aC V0) 110 := by
  refine ((step109_val (val109 V0)).2).trans ?_
  rw [val109_main_arg0 V0, val109_main_v3 V0, val109_main_arg2 V0, val109_main_arg3 V0, val109_h V0, val109_y V0]
  rw [← hI_at (aX V0) (aA V0) (aB V0) 108 109 (by decide) rfl]
  exact (yJ_at (aX V0) (aA V0) (aB V0) (aC V0) 109 110 (by decide) rfl).symm
/-- The contents after step 110. -/
def val111 (V0 : Valuation τ sig (Elt Ideal)) : Valuation τ sig (Elt Ideal) := after (stepOps110 (F := Ideal)) (val110 V0)
theorem val111_main_arg0 (V0 : Valuation τ sig (Elt Ideal)) : val111 V0 (Proc.devRef .tc main_arg0) = aX V0 :=
  (after_keep _ 10 stepOps110_ok main_arg0 (by decide +kernel) (val110 V0)).trans (val110_main_arg0 V0)
theorem val111_main_arg1 (V0 : Valuation τ sig (Elt Ideal)) : val111 V0 (Proc.devRef .tc main_arg1) = aA V0 :=
  (after_keep _ 10 stepOps110_ok main_arg1 (by decide +kernel) (val110 V0)).trans (val110_main_arg1 V0)
theorem val111_main_arg2 (V0 : Valuation τ sig (Elt Ideal)) : val111 V0 (Proc.devRef .tc main_arg2) = aB V0 :=
  (after_keep _ 10 stepOps110_ok main_arg2 (by decide +kernel) (val110 V0)).trans (val110_main_arg2 V0)
theorem val111_main_arg3 (V0 : Valuation τ sig (Elt Ideal)) : val111 V0 (Proc.devRef .tc main_arg3) = aC V0 :=
  (after_keep _ 10 stepOps110_ok main_arg3 (by decide +kernel) (val110 V0)).trans (val110_main_arg3 V0)
theorem val111_main_v3 (V0 : Valuation τ sig (Elt Ideal)) : val111 V0 (Proc.devRef .tc main_v3) = decay (aA V0) :=
  (after_keep _ 10 stepOps110_ok main_v3 (by decide +kernel) (val110 V0)).trans (val110_main_v3 V0)
theorem val111_h (V0 : Valuation τ sig (Elt Ideal)) : val111 V0 (Proc.devRef .tc main_v2215) = hI (aX V0) (aA V0) (aB V0) 110 := by
  refine ((step110_val (val110 V0)).1).trans ?_
  rw [val110_main_arg0 V0, val110_main_v3 V0, val110_main_arg2 V0, val110_h V0]
  exact (hI_at (aX V0) (aA V0) (aB V0) 109 110 (by decide) rfl).symm
theorem val111_y (V0 : Valuation τ sig (Elt Ideal)) : val111 V0 (Proc.devRef .tc main_v2223) = yJ (aX V0) (aA V0) (aB V0) (aC V0) 111 := by
  refine ((step110_val (val110 V0)).2).trans ?_
  rw [val110_main_arg0 V0, val110_main_v3 V0, val110_main_arg2 V0, val110_main_arg3 V0, val110_h V0, val110_y V0]
  rw [← hI_at (aX V0) (aA V0) (aB V0) 109 110 (by decide) rfl]
  exact (yJ_at (aX V0) (aA V0) (aB V0) (aC V0) 110 111 (by decide) rfl).symm
/-- The contents after step 111. -/
def val112 (V0 : Valuation τ sig (Elt Ideal)) : Valuation τ sig (Elt Ideal) := after (stepOps111 (F := Ideal)) (val111 V0)
theorem val112_main_arg0 (V0 : Valuation τ sig (Elt Ideal)) : val112 V0 (Proc.devRef .tc main_arg0) = aX V0 :=
  (after_keep _ 10 stepOps111_ok main_arg0 (by decide +kernel) (val111 V0)).trans (val111_main_arg0 V0)
theorem val112_main_arg1 (V0 : Valuation τ sig (Elt Ideal)) : val112 V0 (Proc.devRef .tc main_arg1) = aA V0 :=
  (after_keep _ 10 stepOps111_ok main_arg1 (by decide +kernel) (val111 V0)).trans (val111_main_arg1 V0)
theorem val112_main_arg2 (V0 : Valuation τ sig (Elt Ideal)) : val112 V0 (Proc.devRef .tc main_arg2) = aB V0 :=
  (after_keep _ 10 stepOps111_ok main_arg2 (by decide +kernel) (val111 V0)).trans (val111_main_arg2 V0)
theorem val112_main_arg3 (V0 : Valuation τ sig (Elt Ideal)) : val112 V0 (Proc.devRef .tc main_arg3) = aC V0 :=
  (after_keep _ 10 stepOps111_ok main_arg3 (by decide +kernel) (val111 V0)).trans (val111_main_arg3 V0)
theorem val112_main_v3 (V0 : Valuation τ sig (Elt Ideal)) : val112 V0 (Proc.devRef .tc main_v3) = decay (aA V0) :=
  (after_keep _ 10 stepOps111_ok main_v3 (by decide +kernel) (val111 V0)).trans (val111_main_v3 V0)
theorem val112_h (V0 : Valuation τ sig (Elt Ideal)) : val112 V0 (Proc.devRef .tc main_v2235) = hI (aX V0) (aA V0) (aB V0) 111 := by
  refine ((step111_val (val111 V0)).1).trans ?_
  rw [val111_main_arg0 V0, val111_main_v3 V0, val111_main_arg2 V0, val111_h V0]
  exact (hI_at (aX V0) (aA V0) (aB V0) 110 111 (by decide) rfl).symm
theorem val112_y (V0 : Valuation τ sig (Elt Ideal)) : val112 V0 (Proc.devRef .tc main_v2243) = yJ (aX V0) (aA V0) (aB V0) (aC V0) 112 := by
  refine ((step111_val (val111 V0)).2).trans ?_
  rw [val111_main_arg0 V0, val111_main_v3 V0, val111_main_arg2 V0, val111_main_arg3 V0, val111_h V0, val111_y V0]
  rw [← hI_at (aX V0) (aA V0) (aB V0) 110 111 (by decide) rfl]
  exact (yJ_at (aX V0) (aA V0) (aB V0) (aC V0) 111 112 (by decide) rfl).symm
/-- The contents after step 112. -/
def val113 (V0 : Valuation τ sig (Elt Ideal)) : Valuation τ sig (Elt Ideal) := after (stepOps112 (F := Ideal)) (val112 V0)
theorem val113_main_arg0 (V0 : Valuation τ sig (Elt Ideal)) : val113 V0 (Proc.devRef .tc main_arg0) = aX V0 :=
  (after_keep _ 10 stepOps112_ok main_arg0 (by decide +kernel) (val112 V0)).trans (val112_main_arg0 V0)
theorem val113_main_arg1 (V0 : Valuation τ sig (Elt Ideal)) : val113 V0 (Proc.devRef .tc main_arg1) = aA V0 :=
  (after_keep _ 10 stepOps112_ok main_arg1 (by decide +kernel) (val112 V0)).trans (val112_main_arg1 V0)
theorem val113_main_arg2 (V0 : Valuation τ sig (Elt Ideal)) : val113 V0 (Proc.devRef .tc main_arg2) = aB V0 :=
  (after_keep _ 10 stepOps112_ok main_arg2 (by decide +kernel) (val112 V0)).trans (val112_main_arg2 V0)
theorem val113_main_arg3 (V0 : Valuation τ sig (Elt Ideal)) : val113 V0 (Proc.devRef .tc main_arg3) = aC V0 :=
  (after_keep _ 10 stepOps112_ok main_arg3 (by decide +kernel) (val112 V0)).trans (val112_main_arg3 V0)
theorem val113_main_v3 (V0 : Valuation τ sig (Elt Ideal)) : val113 V0 (Proc.devRef .tc main_v3) = decay (aA V0) :=
  (after_keep _ 10 stepOps112_ok main_v3 (by decide +kernel) (val112 V0)).trans (val112_main_v3 V0)
theorem val113_h (V0 : Valuation τ sig (Elt Ideal)) : val113 V0 (Proc.devRef .tc main_v2255) = hI (aX V0) (aA V0) (aB V0) 112 := by
  refine ((step112_val (val112 V0)).1).trans ?_
  rw [val112_main_arg0 V0, val112_main_v3 V0, val112_main_arg2 V0, val112_h V0]
  exact (hI_at (aX V0) (aA V0) (aB V0) 111 112 (by decide) rfl).symm
theorem val113_y (V0 : Valuation τ sig (Elt Ideal)) : val113 V0 (Proc.devRef .tc main_v2263) = yJ (aX V0) (aA V0) (aB V0) (aC V0) 113 := by
  refine ((step112_val (val112 V0)).2).trans ?_
  rw [val112_main_arg0 V0, val112_main_v3 V0, val112_main_arg2 V0, val112_main_arg3 V0, val112_h V0, val112_y V0]
  rw [← hI_at (aX V0) (aA V0) (aB V0) 111 112 (by decide) rfl]
  exact (yJ_at (aX V0) (aA V0) (aB V0) (aC V0) 112 113 (by decide) rfl).symm
/-- The contents after step 113. -/
def val114 (V0 : Valuation τ sig (Elt Ideal)) : Valuation τ sig (Elt Ideal) := after (stepOps113 (F := Ideal)) (val113 V0)
theorem val114_main_arg0 (V0 : Valuation τ sig (Elt Ideal)) : val114 V0 (Proc.devRef .tc main_arg0) = aX V0 :=
  (after_keep _ 10 stepOps113_ok main_arg0 (by decide +kernel) (val113 V0)).trans (val113_main_arg0 V0)
theorem val114_main_arg1 (V0 : Valuation τ sig (Elt Ideal)) : val114 V0 (Proc.devRef .tc main_arg1) = aA V0 :=
  (after_keep _ 10 stepOps113_ok main_arg1 (by decide +kernel) (val113 V0)).trans (val113_main_arg1 V0)
theorem val114_main_arg2 (V0 : Valuation τ sig (Elt Ideal)) : val114 V0 (Proc.devRef .tc main_arg2) = aB V0 :=
  (after_keep _ 10 stepOps113_ok main_arg2 (by decide +kernel) (val113 V0)).trans (val113_main_arg2 V0)
theorem val114_main_arg3 (V0 : Valuation τ sig (Elt Ideal)) : val114 V0 (Proc.devRef .tc main_arg3) = aC V0 :=
  (after_keep _ 10 stepOps113_ok main_arg3 (by decide +kernel) (val113 V0)).trans (val113_main_arg3 V0)
theorem val114_main_v3 (V0 : Valuation τ sig (Elt Ideal)) : val114 V0 (Proc.devRef .tc main_v3) = decay (aA V0) :=
  (after_keep _ 10 stepOps113_ok main_v3 (by decide +kernel) (val113 V0)).trans (val113_main_v3 V0)
theorem val114_h (V0 : Valuation τ sig (Elt Ideal)) : val114 V0 (Proc.devRef .tc main_v2275) = hI (aX V0) (aA V0) (aB V0) 113 := by
  refine ((step113_val (val113 V0)).1).trans ?_
  rw [val113_main_arg0 V0, val113_main_v3 V0, val113_main_arg2 V0, val113_h V0]
  exact (hI_at (aX V0) (aA V0) (aB V0) 112 113 (by decide) rfl).symm
theorem val114_y (V0 : Valuation τ sig (Elt Ideal)) : val114 V0 (Proc.devRef .tc main_v2283) = yJ (aX V0) (aA V0) (aB V0) (aC V0) 114 := by
  refine ((step113_val (val113 V0)).2).trans ?_
  rw [val113_main_arg0 V0, val113_main_v3 V0, val113_main_arg2 V0, val113_main_arg3 V0, val113_h V0, val113_y V0]
  rw [← hI_at (aX V0) (aA V0) (aB V0) 112 113 (by decide) rfl]
  exact (yJ_at (aX V0) (aA V0) (aB V0) (aC V0) 113 114 (by decide) rfl).symm
/-- The contents after step 114. -/
def val115 (V0 : Valuation τ sig (Elt Ideal)) : Valuation τ sig (Elt Ideal) := after (stepOps114 (F := Ideal)) (val114 V0)
theorem val115_main_arg0 (V0 : Valuation τ sig (Elt Ideal)) : val115 V0 (Proc.devRef .tc main_arg0) = aX V0 :=
  (after_keep _ 10 stepOps114_ok main_arg0 (by decide +kernel) (val114 V0)).trans (val114_main_arg0 V0)
theorem val115_main_arg1 (V0 : Valuation τ sig (Elt Ideal)) : val115 V0 (Proc.devRef .tc main_arg1) = aA V0 :=
  (after_keep _ 10 stepOps114_ok main_arg1 (by decide +kernel) (val114 V0)).trans (val114_main_arg1 V0)
theorem val115_main_arg2 (V0 : Valuation τ sig (Elt Ideal)) : val115 V0 (Proc.devRef .tc main_arg2) = aB V0 :=
  (after_keep _ 10 stepOps114_ok main_arg2 (by decide +kernel) (val114 V0)).trans (val114_main_arg2 V0)
theorem val115_main_arg3 (V0 : Valuation τ sig (Elt Ideal)) : val115 V0 (Proc.devRef .tc main_arg3) = aC V0 :=
  (after_keep _ 10 stepOps114_ok main_arg3 (by decide +kernel) (val114 V0)).trans (val114_main_arg3 V0)
theorem val115_main_v3 (V0 : Valuation τ sig (Elt Ideal)) : val115 V0 (Proc.devRef .tc main_v3) = decay (aA V0) :=
  (after_keep _ 10 stepOps114_ok main_v3 (by decide +kernel) (val114 V0)).trans (val114_main_v3 V0)
theorem val115_h (V0 : Valuation τ sig (Elt Ideal)) : val115 V0 (Proc.devRef .tc main_v2295) = hI (aX V0) (aA V0) (aB V0) 114 := by
  refine ((step114_val (val114 V0)).1).trans ?_
  rw [val114_main_arg0 V0, val114_main_v3 V0, val114_main_arg2 V0, val114_h V0]
  exact (hI_at (aX V0) (aA V0) (aB V0) 113 114 (by decide) rfl).symm
theorem val115_y (V0 : Valuation τ sig (Elt Ideal)) : val115 V0 (Proc.devRef .tc main_v2303) = yJ (aX V0) (aA V0) (aB V0) (aC V0) 115 := by
  refine ((step114_val (val114 V0)).2).trans ?_
  rw [val114_main_arg0 V0, val114_main_v3 V0, val114_main_arg2 V0, val114_main_arg3 V0, val114_h V0, val114_y V0]
  rw [← hI_at (aX V0) (aA V0) (aB V0) 113 114 (by decide) rfl]
  exact (yJ_at (aX V0) (aA V0) (aB V0) (aC V0) 114 115 (by decide) rfl).symm
/-- The contents after step 115. -/
def val116 (V0 : Valuation τ sig (Elt Ideal)) : Valuation τ sig (Elt Ideal) := after (stepOps115 (F := Ideal)) (val115 V0)
theorem val116_main_arg0 (V0 : Valuation τ sig (Elt Ideal)) : val116 V0 (Proc.devRef .tc main_arg0) = aX V0 :=
  (after_keep _ 10 stepOps115_ok main_arg0 (by decide +kernel) (val115 V0)).trans (val115_main_arg0 V0)
theorem val116_main_arg1 (V0 : Valuation τ sig (Elt Ideal)) : val116 V0 (Proc.devRef .tc main_arg1) = aA V0 :=
  (after_keep _ 10 stepOps115_ok main_arg1 (by decide +kernel) (val115 V0)).trans (val115_main_arg1 V0)
theorem val116_main_arg2 (V0 : Valuation τ sig (Elt Ideal)) : val116 V0 (Proc.devRef .tc main_arg2) = aB V0 :=
  (after_keep _ 10 stepOps115_ok main_arg2 (by decide +kernel) (val115 V0)).trans (val115_main_arg2 V0)
theorem val116_main_arg3 (V0 : Valuation τ sig (Elt Ideal)) : val116 V0 (Proc.devRef .tc main_arg3) = aC V0 :=
  (after_keep _ 10 stepOps115_ok main_arg3 (by decide +kernel) (val115 V0)).trans (val115_main_arg3 V0)
theorem val116_main_v3 (V0 : Valuation τ sig (Elt Ideal)) : val116 V0 (Proc.devRef .tc main_v3) = decay (aA V0) :=
  (after_keep _ 10 stepOps115_ok main_v3 (by decide +kernel) (val115 V0)).trans (val115_main_v3 V0)
theorem val116_h (V0 : Valuation τ sig (Elt Ideal)) : val116 V0 (Proc.devRef .tc main_v2315) = hI (aX V0) (aA V0) (aB V0) 115 := by
  refine ((step115_val (val115 V0)).1).trans ?_
  rw [val115_main_arg0 V0, val115_main_v3 V0, val115_main_arg2 V0, val115_h V0]
  exact (hI_at (aX V0) (aA V0) (aB V0) 114 115 (by decide) rfl).symm
theorem val116_y (V0 : Valuation τ sig (Elt Ideal)) : val116 V0 (Proc.devRef .tc main_v2323) = yJ (aX V0) (aA V0) (aB V0) (aC V0) 116 := by
  refine ((step115_val (val115 V0)).2).trans ?_
  rw [val115_main_arg0 V0, val115_main_v3 V0, val115_main_arg2 V0, val115_main_arg3 V0, val115_h V0, val115_y V0]
  rw [← hI_at (aX V0) (aA V0) (aB V0) 114 115 (by decide) rfl]
  exact (yJ_at (aX V0) (aA V0) (aB V0) (aC V0) 115 116 (by decide) rfl).symm
/-- The contents after step 116. -/
def val117 (V0 : Valuation τ sig (Elt Ideal)) : Valuation τ sig (Elt Ideal) := after (stepOps116 (F := Ideal)) (val116 V0)
theorem val117_main_arg0 (V0 : Valuation τ sig (Elt Ideal)) : val117 V0 (Proc.devRef .tc main_arg0) = aX V0 :=
  (after_keep _ 10 stepOps116_ok main_arg0 (by decide +kernel) (val116 V0)).trans (val116_main_arg0 V0)
theorem val117_main_arg1 (V0 : Valuation τ sig (Elt Ideal)) : val117 V0 (Proc.devRef .tc main_arg1) = aA V0 :=
  (after_keep _ 10 stepOps116_ok main_arg1 (by decide +kernel) (val116 V0)).trans (val116_main_arg1 V0)
theorem val117_main_arg2 (V0 : Valuation τ sig (Elt Ideal)) : val117 V0 (Proc.devRef .tc main_arg2) = aB V0 :=
  (after_keep _ 10 stepOps116_ok main_arg2 (by decide +kernel) (val116 V0)).trans (val116_main_arg2 V0)
theorem val117_main_arg3 (V0 : Valuation τ sig (Elt Ideal)) : val117 V0 (Proc.devRef .tc main_arg3) = aC V0 :=
  (after_keep _ 10 stepOps116_ok main_arg3 (by decide +kernel) (val116 V0)).trans (val116_main_arg3 V0)
theorem val117_main_v3 (V0 : Valuation τ sig (Elt Ideal)) : val117 V0 (Proc.devRef .tc main_v3) = decay (aA V0) :=
  (after_keep _ 10 stepOps116_ok main_v3 (by decide +kernel) (val116 V0)).trans (val116_main_v3 V0)
theorem val117_h (V0 : Valuation τ sig (Elt Ideal)) : val117 V0 (Proc.devRef .tc main_v2335) = hI (aX V0) (aA V0) (aB V0) 116 := by
  refine ((step116_val (val116 V0)).1).trans ?_
  rw [val116_main_arg0 V0, val116_main_v3 V0, val116_main_arg2 V0, val116_h V0]
  exact (hI_at (aX V0) (aA V0) (aB V0) 115 116 (by decide) rfl).symm
theorem val117_y (V0 : Valuation τ sig (Elt Ideal)) : val117 V0 (Proc.devRef .tc main_v2343) = yJ (aX V0) (aA V0) (aB V0) (aC V0) 117 := by
  refine ((step116_val (val116 V0)).2).trans ?_
  rw [val116_main_arg0 V0, val116_main_v3 V0, val116_main_arg2 V0, val116_main_arg3 V0, val116_h V0, val116_y V0]
  rw [← hI_at (aX V0) (aA V0) (aB V0) 115 116 (by decide) rfl]
  exact (yJ_at (aX V0) (aA V0) (aB V0) (aC V0) 116 117 (by decide) rfl).symm
/-- The contents after step 117. -/
def val118 (V0 : Valuation τ sig (Elt Ideal)) : Valuation τ sig (Elt Ideal) := after (stepOps117 (F := Ideal)) (val117 V0)
theorem val118_main_arg0 (V0 : Valuation τ sig (Elt Ideal)) : val118 V0 (Proc.devRef .tc main_arg0) = aX V0 :=
  (after_keep _ 10 stepOps117_ok main_arg0 (by decide +kernel) (val117 V0)).trans (val117_main_arg0 V0)
theorem val118_main_arg1 (V0 : Valuation τ sig (Elt Ideal)) : val118 V0 (Proc.devRef .tc main_arg1) = aA V0 :=
  (after_keep _ 10 stepOps117_ok main_arg1 (by decide +kernel) (val117 V0)).trans (val117_main_arg1 V0)
theorem val118_main_arg2 (V0 : Valuation τ sig (Elt Ideal)) : val118 V0 (Proc.devRef .tc main_arg2) = aB V0 :=
  (after_keep _ 10 stepOps117_ok main_arg2 (by decide +kernel) (val117 V0)).trans (val117_main_arg2 V0)
theorem val118_main_arg3 (V0 : Valuation τ sig (Elt Ideal)) : val118 V0 (Proc.devRef .tc main_arg3) = aC V0 :=
  (after_keep _ 10 stepOps117_ok main_arg3 (by decide +kernel) (val117 V0)).trans (val117_main_arg3 V0)
theorem val118_main_v3 (V0 : Valuation τ sig (Elt Ideal)) : val118 V0 (Proc.devRef .tc main_v3) = decay (aA V0) :=
  (after_keep _ 10 stepOps117_ok main_v3 (by decide +kernel) (val117 V0)).trans (val117_main_v3 V0)
theorem val118_h (V0 : Valuation τ sig (Elt Ideal)) : val118 V0 (Proc.devRef .tc main_v2355) = hI (aX V0) (aA V0) (aB V0) 117 := by
  refine ((step117_val (val117 V0)).1).trans ?_
  rw [val117_main_arg0 V0, val117_main_v3 V0, val117_main_arg2 V0, val117_h V0]
  exact (hI_at (aX V0) (aA V0) (aB V0) 116 117 (by decide) rfl).symm
theorem val118_y (V0 : Valuation τ sig (Elt Ideal)) : val118 V0 (Proc.devRef .tc main_v2363) = yJ (aX V0) (aA V0) (aB V0) (aC V0) 118 := by
  refine ((step117_val (val117 V0)).2).trans ?_
  rw [val117_main_arg0 V0, val117_main_v3 V0, val117_main_arg2 V0, val117_main_arg3 V0, val117_h V0, val117_y V0]
  rw [← hI_at (aX V0) (aA V0) (aB V0) 116 117 (by decide) rfl]
  exact (yJ_at (aX V0) (aA V0) (aB V0) (aC V0) 117 118 (by decide) rfl).symm
/-- The contents after step 118. -/
def val119 (V0 : Valuation τ sig (Elt Ideal)) : Valuation τ sig (Elt Ideal) := after (stepOps118 (F := Ideal)) (val118 V0)
theorem val119_main_arg0 (V0 : Valuation τ sig (Elt Ideal)) : val119 V0 (Proc.devRef .tc main_arg0) = aX V0 :=
  (after_keep _ 10 stepOps118_ok main_arg0 (by decide +kernel) (val118 V0)).trans (val118_main_arg0 V0)
theorem val119_main_arg1 (V0 : Valuation τ sig (Elt Ideal)) : val119 V0 (Proc.devRef .tc main_arg1) = aA V0 :=
  (after_keep _ 10 stepOps118_ok main_arg1 (by decide +kernel) (val118 V0)).trans (val118_main_arg1 V0)
theorem val119_main_arg2 (V0 : Valuation τ sig (Elt Ideal)) : val119 V0 (Proc.devRef .tc main_arg2) = aB V0 :=
  (after_keep _ 10 stepOps118_ok main_arg2 (by decide +kernel) (val118 V0)).trans (val118_main_arg2 V0)
theorem val119_main_arg3 (V0 : Valuation τ sig (Elt Ideal)) : val119 V0 (Proc.devRef .tc main_arg3) = aC V0 :=
  (after_keep _ 10 stepOps118_ok main_arg3 (by decide +kernel) (val118 V0)).trans (val118_main_arg3 V0)
theorem val119_main_v3 (V0 : Valuation τ sig (Elt Ideal)) : val119 V0 (Proc.devRef .tc main_v3) = decay (aA V0) :=
  (after_keep _ 10 stepOps118_ok main_v3 (by decide +kernel) (val118 V0)).trans (val118_main_v3 V0)
theorem val119_h (V0 : Valuation τ sig (Elt Ideal)) : val119 V0 (Proc.devRef .tc main_v2375) = hI (aX V0) (aA V0) (aB V0) 118 := by
  refine ((step118_val (val118 V0)).1).trans ?_
  rw [val118_main_arg0 V0, val118_main_v3 V0, val118_main_arg2 V0, val118_h V0]
  exact (hI_at (aX V0) (aA V0) (aB V0) 117 118 (by decide) rfl).symm
theorem val119_y (V0 : Valuation τ sig (Elt Ideal)) : val119 V0 (Proc.devRef .tc main_v2383) = yJ (aX V0) (aA V0) (aB V0) (aC V0) 119 := by
  refine ((step118_val (val118 V0)).2).trans ?_
  rw [val118_main_arg0 V0, val118_main_v3 V0, val118_main_arg2 V0, val118_main_arg3 V0, val118_h V0, val118_y V0]
  rw [← hI_at (aX V0) (aA V0) (aB V0) 117 118 (by decide) rfl]
  exact (yJ_at (aX V0) (aA V0) (aB V0) (aC V0) 118 119 (by decide) rfl).symm
/-- The contents after step 119. -/
def val120 (V0 : Valuation τ sig (Elt Ideal)) : Valuation τ sig (Elt Ideal) := after (stepOps119 (F := Ideal)) (val119 V0)
theorem val120_main_arg0 (V0 : Valuation τ sig (Elt Ideal)) : val120 V0 (Proc.devRef .tc main_arg0) = aX V0 :=
  (after_keep _ 10 stepOps119_ok main_arg0 (by decide +kernel) (val119 V0)).trans (val119_main_arg0 V0)
theorem val120_main_arg1 (V0 : Valuation τ sig (Elt Ideal)) : val120 V0 (Proc.devRef .tc main_arg1) = aA V0 :=
  (after_keep _ 10 stepOps119_ok main_arg1 (by decide +kernel) (val119 V0)).trans (val119_main_arg1 V0)
theorem val120_main_arg2 (V0 : Valuation τ sig (Elt Ideal)) : val120 V0 (Proc.devRef .tc main_arg2) = aB V0 :=
  (after_keep _ 10 stepOps119_ok main_arg2 (by decide +kernel) (val119 V0)).trans (val119_main_arg2 V0)
theorem val120_main_arg3 (V0 : Valuation τ sig (Elt Ideal)) : val120 V0 (Proc.devRef .tc main_arg3) = aC V0 :=
  (after_keep _ 10 stepOps119_ok main_arg3 (by decide +kernel) (val119 V0)).trans (val119_main_arg3 V0)
theorem val120_main_v3 (V0 : Valuation τ sig (Elt Ideal)) : val120 V0 (Proc.devRef .tc main_v3) = decay (aA V0) :=
  (after_keep _ 10 stepOps119_ok main_v3 (by decide +kernel) (val119 V0)).trans (val119_main_v3 V0)
theorem val120_h (V0 : Valuation τ sig (Elt Ideal)) : val120 V0 (Proc.devRef .tc main_v2395) = hI (aX V0) (aA V0) (aB V0) 119 := by
  refine ((step119_val (val119 V0)).1).trans ?_
  rw [val119_main_arg0 V0, val119_main_v3 V0, val119_main_arg2 V0, val119_h V0]
  exact (hI_at (aX V0) (aA V0) (aB V0) 118 119 (by decide) rfl).symm
theorem val120_y (V0 : Valuation τ sig (Elt Ideal)) : val120 V0 (Proc.devRef .tc main_v2403) = yJ (aX V0) (aA V0) (aB V0) (aC V0) 120 := by
  refine ((step119_val (val119 V0)).2).trans ?_
  rw [val119_main_arg0 V0, val119_main_v3 V0, val119_main_arg2 V0, val119_main_arg3 V0, val119_h V0, val119_y V0]
  rw [← hI_at (aX V0) (aA V0) (aB V0) 118 119 (by decide) rfl]
  exact (yJ_at (aX V0) (aA V0) (aB V0) (aC V0) 119 120 (by decide) rfl).symm
/-- The contents after step 120. -/
def val121 (V0 : Valuation τ sig (Elt Ideal)) : Valuation τ sig (Elt Ideal) := after (stepOps120 (F := Ideal)) (val120 V0)
theorem val121_main_arg0 (V0 : Valuation τ sig (Elt Ideal)) : val121 V0 (Proc.devRef .tc main_arg0) = aX V0 :=
  (after_keep _ 10 stepOps120_ok main_arg0 (by decide +kernel) (val120 V0)).trans (val120_main_arg0 V0)
theorem val121_main_arg1 (V0 : Valuation τ sig (Elt Ideal)) : val121 V0 (Proc.devRef .tc main_arg1) = aA V0 :=
  (after_keep _ 10 stepOps120_ok main_arg1 (by decide +kernel) (val120 V0)).trans (val120_main_arg1 V0)
theorem val121_main_arg2 (V0 : Valuation τ sig (Elt Ideal)) : val121 V0 (Proc.devRef .tc main_arg2) = aB V0 :=
  (after_keep _ 10 stepOps120_ok main_arg2 (by decide +kernel) (val120 V0)).trans (val120_main_arg2 V0)
theorem val121_main_arg3 (V0 : Valuation τ sig (Elt Ideal)) : val121 V0 (Proc.devRef .tc main_arg3) = aC V0 :=
  (after_keep _ 10 stepOps120_ok main_arg3 (by decide +kernel) (val120 V0)).trans (val120_main_arg3 V0)
theorem val121_main_v3 (V0 : Valuation τ sig (Elt Ideal)) : val121 V0 (Proc.devRef .tc main_v3) = decay (aA V0) :=
  (after_keep _ 10 stepOps120_ok main_v3 (by decide +kernel) (val120 V0)).trans (val120_main_v3 V0)
theorem val121_h (V0 : Valuation τ sig (Elt Ideal)) : val121 V0 (Proc.devRef .tc main_v2415) = hI (aX V0) (aA V0) (aB V0) 120 := by
  refine ((step120_val (val120 V0)).1).trans ?_
  rw [val120_main_arg0 V0, val120_main_v3 V0, val120_main_arg2 V0, val120_h V0]
  exact (hI_at (aX V0) (aA V0) (aB V0) 119 120 (by decide) rfl).symm
theorem val121_y (V0 : Valuation τ sig (Elt Ideal)) : val121 V0 (Proc.devRef .tc main_v2423) = yJ (aX V0) (aA V0) (aB V0) (aC V0) 121 := by
  refine ((step120_val (val120 V0)).2).trans ?_
  rw [val120_main_arg0 V0, val120_main_v3 V0, val120_main_arg2 V0, val120_main_arg3 V0, val120_h V0, val120_y V0]
  rw [← hI_at (aX V0) (aA V0) (aB V0) 119 120 (by decide) rfl]
  exact (yJ_at (aX V0) (aA V0) (aB V0) (aC V0) 120 121 (by decide) rfl).symm
/-- The contents after step 121. -/
def val122 (V0 : Valuation τ sig (Elt Ideal)) : Valuation τ sig (Elt Ideal) := after (stepOps121 (F := Ideal)) (val121 V0)
theorem val122_main_arg0 (V0 : Valuation τ sig (Elt Ideal)) : val122 V0 (Proc.devRef .tc main_arg0) = aX V0 :=
  (after_keep _ 10 stepOps121_ok main_arg0 (by decide +kernel) (val121 V0)).trans (val121_main_arg0 V0)
theorem val122_main_arg1 (V0 : Valuation τ sig (Elt Ideal)) : val122 V0 (Proc.devRef .tc main_arg1) = aA V0 :=
  (after_keep _ 10 stepOps121_ok main_arg1 (by decide +kernel) (val121 V0)).trans (val121_main_arg1 V0)
theorem val122_main_arg2 (V0 : Valuation τ sig (Elt Ideal)) : val122 V0 (Proc.devRef .tc main_arg2) = aB V0 :=
  (after_keep _ 10 stepOps121_ok main_arg2 (by decide +kernel) (val121 V0)).trans (val121_main_arg2 V0)
theorem val122_main_arg3 (V0 : Valuation τ sig (Elt Ideal)) : val122 V0 (Proc.devRef .tc main_arg3) = aC V0 :=
  (after_keep _ 10 stepOps121_ok main_arg3 (by decide +kernel) (val121 V0)).trans (val121_main_arg3 V0)
theorem val122_main_v3 (V0 : Valuation τ sig (Elt Ideal)) : val122 V0 (Proc.devRef .tc main_v3) = decay (aA V0) :=
  (after_keep _ 10 stepOps121_ok main_v3 (by decide +kernel) (val121 V0)).trans (val121_main_v3 V0)
theorem val122_h (V0 : Valuation τ sig (Elt Ideal)) : val122 V0 (Proc.devRef .tc main_v2435) = hI (aX V0) (aA V0) (aB V0) 121 := by
  refine ((step121_val (val121 V0)).1).trans ?_
  rw [val121_main_arg0 V0, val121_main_v3 V0, val121_main_arg2 V0, val121_h V0]
  exact (hI_at (aX V0) (aA V0) (aB V0) 120 121 (by decide) rfl).symm
theorem val122_y (V0 : Valuation τ sig (Elt Ideal)) : val122 V0 (Proc.devRef .tc main_v2443) = yJ (aX V0) (aA V0) (aB V0) (aC V0) 122 := by
  refine ((step121_val (val121 V0)).2).trans ?_
  rw [val121_main_arg0 V0, val121_main_v3 V0, val121_main_arg2 V0, val121_main_arg3 V0, val121_h V0, val121_y V0]
  rw [← hI_at (aX V0) (aA V0) (aB V0) 120 121 (by decide) rfl]
  exact (yJ_at (aX V0) (aA V0) (aB V0) (aC V0) 121 122 (by decide) rfl).symm
/-- The contents after step 122. -/
def val123 (V0 : Valuation τ sig (Elt Ideal)) : Valuation τ sig (Elt Ideal) := after (stepOps122 (F := Ideal)) (val122 V0)
theorem val123_main_arg0 (V0 : Valuation τ sig (Elt Ideal)) : val123 V0 (Proc.devRef .tc main_arg0) = aX V0 :=
  (after_keep _ 10 stepOps122_ok main_arg0 (by decide +kernel) (val122 V0)).trans (val122_main_arg0 V0)
theorem val123_main_arg1 (V0 : Valuation τ sig (Elt Ideal)) : val123 V0 (Proc.devRef .tc main_arg1) = aA V0 :=
  (after_keep _ 10 stepOps122_ok main_arg1 (by decide +kernel) (val122 V0)).trans (val122_main_arg1 V0)
theorem val123_main_arg2 (V0 : Valuation τ sig (Elt Ideal)) : val123 V0 (Proc.devRef .tc main_arg2) = aB V0 :=
  (after_keep _ 10 stepOps122_ok main_arg2 (by decide +kernel) (val122 V0)).trans (val122_main_arg2 V0)
theorem val123_main_arg3 (V0 : Valuation τ sig (Elt Ideal)) : val123 V0 (Proc.devRef .tc main_arg3) = aC V0 :=
  (after_keep _ 10 stepOps122_ok main_arg3 (by decide +kernel) (val122 V0)).trans (val122_main_arg3 V0)
theorem val123_main_v3 (V0 : Valuation τ sig (Elt Ideal)) : val123 V0 (Proc.devRef .tc main_v3) = decay (aA V0) :=
  (after_keep _ 10 stepOps122_ok main_v3 (by decide +kernel) (val122 V0)).trans (val122_main_v3 V0)
theorem val123_h (V0 : Valuation τ sig (Elt Ideal)) : val123 V0 (Proc.devRef .tc main_v2455) = hI (aX V0) (aA V0) (aB V0) 122 := by
  refine ((step122_val (val122 V0)).1).trans ?_
  rw [val122_main_arg0 V0, val122_main_v3 V0, val122_main_arg2 V0, val122_h V0]
  exact (hI_at (aX V0) (aA V0) (aB V0) 121 122 (by decide) rfl).symm
theorem val123_y (V0 : Valuation τ sig (Elt Ideal)) : val123 V0 (Proc.devRef .tc main_v2463) = yJ (aX V0) (aA V0) (aB V0) (aC V0) 123 := by
  refine ((step122_val (val122 V0)).2).trans ?_
  rw [val122_main_arg0 V0, val122_main_v3 V0, val122_main_arg2 V0, val122_main_arg3 V0, val122_h V0, val122_y V0]
  rw [← hI_at (aX V0) (aA V0) (aB V0) 121 122 (by decide) rfl]
  exact (yJ_at (aX V0) (aA V0) (aB V0) (aC V0) 122 123 (by decide) rfl).symm
/-- The contents after step 123. -/
def val124 (V0 : Valuation τ sig (Elt Ideal)) : Valuation τ sig (Elt Ideal) := after (stepOps123 (F := Ideal)) (val123 V0)
theorem val124_main_arg0 (V0 : Valuation τ sig (Elt Ideal)) : val124 V0 (Proc.devRef .tc main_arg0) = aX V0 :=
  (after_keep _ 10 stepOps123_ok main_arg0 (by decide +kernel) (val123 V0)).trans (val123_main_arg0 V0)
theorem val124_main_arg1 (V0 : Valuation τ sig (Elt Ideal)) : val124 V0 (Proc.devRef .tc main_arg1) = aA V0 :=
  (after_keep _ 10 stepOps123_ok main_arg1 (by decide +kernel) (val123 V0)).trans (val123_main_arg1 V0)
theorem val124_main_arg2 (V0 : Valuation τ sig (Elt Ideal)) : val124 V0 (Proc.devRef .tc main_arg2) = aB V0 :=
  (after_keep _ 10 stepOps123_ok main_arg2 (by decide +kernel) (val123 V0)).trans (val123_main_arg2 V0)
theorem val124_main_arg3 (V0 : Valuation τ sig (Elt Ideal)) : val124 V0 (Proc.devRef .tc main_arg3) = aC V0 :=
  (after_keep _ 10 stepOps123_ok main_arg3 (by decide +kernel) (val123 V0)).trans (val123_main_arg3 V0)
theorem val124_main_v3 (V0 : Valuation τ sig (Elt Ideal)) : val124 V0 (Proc.devRef .tc main_v3) = decay (aA V0) :=
  (after_keep _ 10 stepOps123_ok main_v3 (by decide +kernel) (val123 V0)).trans (val123_main_v3 V0)
theorem val124_h (V0 : Valuation τ sig (Elt Ideal)) : val124 V0 (Proc.devRef .tc main_v2475) = hI (aX V0) (aA V0) (aB V0) 123 := by
  refine ((step123_val (val123 V0)).1).trans ?_
  rw [val123_main_arg0 V0, val123_main_v3 V0, val123_main_arg2 V0, val123_h V0]
  exact (hI_at (aX V0) (aA V0) (aB V0) 122 123 (by decide) rfl).symm
theorem val124_y (V0 : Valuation τ sig (Elt Ideal)) : val124 V0 (Proc.devRef .tc main_v2483) = yJ (aX V0) (aA V0) (aB V0) (aC V0) 124 := by
  refine ((step123_val (val123 V0)).2).trans ?_
  rw [val123_main_arg0 V0, val123_main_v3 V0, val123_main_arg2 V0, val123_main_arg3 V0, val123_h V0, val123_y V0]
  rw [← hI_at (aX V0) (aA V0) (aB V0) 122 123 (by decide) rfl]
  exact (yJ_at (aX V0) (aA V0) (aB V0) (aC V0) 123 124 (by decide) rfl).symm
/-- The contents after step 124. -/
def val125 (V0 : Valuation τ sig (Elt Ideal)) : Valuation τ sig (Elt Ideal) := after (stepOps124 (F := Ideal)) (val124 V0)
theorem val125_main_arg0 (V0 : Valuation τ sig (Elt Ideal)) : val125 V0 (Proc.devRef .tc main_arg0) = aX V0 :=
  (after_keep _ 10 stepOps124_ok main_arg0 (by decide +kernel) (val124 V0)).trans (val124_main_arg0 V0)
theorem val125_main_arg1 (V0 : Valuation τ sig (Elt Ideal)) : val125 V0 (Proc.devRef .tc main_arg1) = aA V0 :=
  (after_keep _ 10 stepOps124_ok main_arg1 (by decide +kernel) (val124 V0)).trans (val124_main_arg1 V0)
theorem val125_main_arg2 (V0 : Valuation τ sig (Elt Ideal)) : val125 V0 (Proc.devRef .tc main_arg2) = aB V0 :=
  (after_keep _ 10 stepOps124_ok main_arg2 (by decide +kernel) (val124 V0)).trans (val124_main_arg2 V0)
theorem val125_main_arg3 (V0 : Valuation τ sig (Elt Ideal)) : val125 V0 (Proc.devRef .tc main_arg3) = aC V0 :=
  (after_keep _ 10 stepOps124_ok main_arg3 (by decide +kernel) (val124 V0)).trans (val124_main_arg3 V0)
theorem val125_main_v3 (V0 : Valuation τ sig (Elt Ideal)) : val125 V0 (Proc.devRef .tc main_v3) = decay (aA V0) :=
  (after_keep _ 10 stepOps124_ok main_v3 (by decide +kernel) (val124 V0)).trans (val124_main_v3 V0)
theorem val125_h (V0 : Valuation τ sig (Elt Ideal)) : val125 V0 (Proc.devRef .tc main_v2495) = hI (aX V0) (aA V0) (aB V0) 124 := by
  refine ((step124_val (val124 V0)).1).trans ?_
  rw [val124_main_arg0 V0, val124_main_v3 V0, val124_main_arg2 V0, val124_h V0]
  exact (hI_at (aX V0) (aA V0) (aB V0) 123 124 (by decide) rfl).symm
theorem val125_y (V0 : Valuation τ sig (Elt Ideal)) : val125 V0 (Proc.devRef .tc main_v2503) = yJ (aX V0) (aA V0) (aB V0) (aC V0) 125 := by
  refine ((step124_val (val124 V0)).2).trans ?_
  rw [val124_main_arg0 V0, val124_main_v3 V0, val124_main_arg2 V0, val124_main_arg3 V0, val124_h V0, val124_y V0]
  rw [← hI_at (aX V0) (aA V0) (aB V0) 123 124 (by decide) rfl]
  exact (yJ_at (aX V0) (aA V0) (aB V0) (aC V0) 124 125 (by decide) rfl).symm
/-- The contents after step 125. -/
def val126 (V0 : Valuation τ sig (Elt Ideal)) : Valuation τ sig (Elt Ideal) := after (stepOps125 (F := Ideal)) (val125 V0)
theorem val126_main_arg0 (V0 : Valuation τ sig (Elt Ideal)) : val126 V0 (Proc.devRef .tc main_arg0) = aX V0 :=
  (after_keep _ 10 stepOps125_ok main_arg0 (by decide +kernel) (val125 V0)).trans (val125_main_arg0 V0)
theorem val126_main_arg1 (V0 : Valuation τ sig (Elt Ideal)) : val126 V0 (Proc.devRef .tc main_arg1) = aA V0 :=
  (after_keep _ 10 stepOps125_ok main_arg1 (by decide +kernel) (val125 V0)).trans (val125_main_arg1 V0)
theorem val126_main_arg2 (V0 : Valuation τ sig (Elt Ideal)) : val126 V0 (Proc.devRef .tc main_arg2) = aB V0 :=
  (after_keep _ 10 stepOps125_ok main_arg2 (by decide +kernel) (val125 V0)).trans (val125_main_arg2 V0)
theorem val126_main_arg3 (V0 : Valuation τ sig (Elt Ideal)) : val126 V0 (Proc.devRef .tc main_arg3) = aC V0 :=
  (after_keep _ 10 stepOps125_ok main_arg3 (by decide +kernel) (val125 V0)).trans (val125_main_arg3 V0)
theorem val126_main_v3 (V0 : Valuation τ sig (Elt Ideal)) : val126 V0 (Proc.devRef .tc main_v3) = decay (aA V0) :=
  (after_keep _ 10 stepOps125_ok main_v3 (by decide +kernel) (val125 V0)).trans (val125_main_v3 V0)
theorem val126_h (V0 : Valuation τ sig (Elt Ideal)) : val126 V0 (Proc.devRef .tc main_v2515) = hI (aX V0) (aA V0) (aB V0) 125 := by
  refine ((step125_val (val125 V0)).1).trans ?_
  rw [val125_main_arg0 V0, val125_main_v3 V0, val125_main_arg2 V0, val125_h V0]
  exact (hI_at (aX V0) (aA V0) (aB V0) 124 125 (by decide) rfl).symm
theorem val126_y (V0 : Valuation τ sig (Elt Ideal)) : val126 V0 (Proc.devRef .tc main_v2523) = yJ (aX V0) (aA V0) (aB V0) (aC V0) 126 := by
  refine ((step125_val (val125 V0)).2).trans ?_
  rw [val125_main_arg0 V0, val125_main_v3 V0, val125_main_arg2 V0, val125_main_arg3 V0, val125_h V0, val125_y V0]
  rw [← hI_at (aX V0) (aA V0) (aB V0) 124 125 (by decide) rfl]
  exact (yJ_at (aX V0) (aA V0) (aB V0) (aC V0) 125 126 (by decide) rfl).symm
/-- The contents after step 126. -/
def val127 (V0 : Valuation τ sig (Elt Ideal)) : Valuation τ sig (Elt Ideal) := after (stepOps126 (F := Ideal)) (val126 V0)
theorem val127_main_arg0 (V0 : Valuation τ sig (Elt Ideal)) : val127 V0 (Proc.devRef .tc main_arg0) = aX V0 :=
  (after_keep _ 10 stepOps126_ok main_arg0 (by decide +kernel) (val126 V0)).trans (val126_main_arg0 V0)
theorem val127_main_arg1 (V0 : Valuation τ sig (Elt Ideal)) : val127 V0 (Proc.devRef .tc main_arg1) = aA V0 :=
  (after_keep _ 10 stepOps126_ok main_arg1 (by decide +kernel) (val126 V0)).trans (val126_main_arg1 V0)
theorem val127_main_arg2 (V0 : Valuation τ sig (Elt Ideal)) : val127 V0 (Proc.devRef .tc main_arg2) = aB V0 :=
  (after_keep _ 10 stepOps126_ok main_arg2 (by decide +kernel) (val126 V0)).trans (val126_main_arg2 V0)
theorem val127_main_arg3 (V0 : Valuation τ sig (Elt Ideal)) : val127 V0 (Proc.devRef .tc main_arg3) = aC V0 :=
  (after_keep _ 10 stepOps126_ok main_arg3 (by decide +kernel) (val126 V0)).trans (val126_main_arg3 V0)
theorem val127_main_v3 (V0 : Valuation τ sig (Elt Ideal)) : val127 V0 (Proc.devRef .tc main_v3) = decay (aA V0) :=
  (after_keep _ 10 stepOps126_ok main_v3 (by decide +kernel) (val126 V0)).trans (val126_main_v3 V0)
theorem val127_h (V0 : Valuation τ sig (Elt Ideal)) : val127 V0 (Proc.devRef .tc main_v2535) = hI (aX V0) (aA V0) (aB V0) 126 := by
  refine ((step126_val (val126 V0)).1).trans ?_
  rw [val126_main_arg0 V0, val126_main_v3 V0, val126_main_arg2 V0, val126_h V0]
  exact (hI_at (aX V0) (aA V0) (aB V0) 125 126 (by decide) rfl).symm
theorem val127_y (V0 : Valuation τ sig (Elt Ideal)) : val127 V0 (Proc.devRef .tc main_v2543) = yJ (aX V0) (aA V0) (aB V0) (aC V0) 127 := by
  refine ((step126_val (val126 V0)).2).trans ?_
  rw [val126_main_arg0 V0, val126_main_v3 V0, val126_main_arg2 V0, val126_main_arg3 V0, val126_h V0, val126_y V0]
  rw [← hI_at (aX V0) (aA V0) (aB V0) 125 126 (by decide) rfl]
  exact (yJ_at (aX V0) (aA V0) (aB V0) (aC V0) 126 127 (by decide) rfl).symm
/-- The contents after step 127. -/
def val128 (V0 : Valuation τ sig (Elt Ideal)) : Valuation τ sig (Elt Ideal) := after (stepOps127 (F := Ideal)) (val127 V0)
theorem val128_main_arg0 (V0 : Valuation τ sig (Elt Ideal)) : val128 V0 (Proc.devRef .tc main_arg0) = aX V0 :=
  (after_keep _ 10 stepOps127_ok main_arg0 (by decide +kernel) (val127 V0)).trans (val127_main_arg0 V0)
theorem val128_main_arg1 (V0 : Valuation τ sig (Elt Ideal)) : val128 V0 (Proc.devRef .tc main_arg1) = aA V0 :=
  (after_keep _ 10 stepOps127_ok main_arg1 (by decide +kernel) (val127 V0)).trans (val127_main_arg1 V0)
theorem val128_main_arg2 (V0 : Valuation τ sig (Elt Ideal)) : val128 V0 (Proc.devRef .tc main_arg2) = aB V0 :=
  (after_keep _ 10 stepOps127_ok main_arg2 (by decide +kernel) (val127 V0)).trans (val127_main_arg2 V0)
theorem val128_main_arg3 (V0 : Valuation τ sig (Elt Ideal)) : val128 V0 (Proc.devRef .tc main_arg3) = aC V0 :=
  (after_keep _ 10 stepOps127_ok main_arg3 (by decide +kernel) (val127 V0)).trans (val127_main_arg3 V0)
theorem val128_main_v3 (V0 : Valuation τ sig (Elt Ideal)) : val128 V0 (Proc.devRef .tc main_v3) = decay (aA V0) :=
  (after_keep _ 10 stepOps127_ok main_v3 (by decide +kernel) (val127 V0)).trans (val127_main_v3 V0)
theorem val128_h (V0 : Valuation τ sig (Elt Ideal)) : val128 V0 (Proc.devRef .tc main_v2555) = hI (aX V0) (aA V0) (aB V0) 127 := by
  refine ((step127_val (val127 V0)).1).trans ?_
  rw [val127_main_arg0 V0, val127_main_v3 V0, val127_main_arg2 V0, val127_h V0]
  exact (hI_at (aX V0) (aA V0) (aB V0) 126 127 (by decide) rfl).symm
theorem val128_y (V0 : Valuation τ sig (Elt Ideal)) : val128 V0 (Proc.devRef .tc main_v2563) = yJ (aX V0) (aA V0) (aB V0) (aC V0) 128 := by
  refine ((step127_val (val127 V0)).2).trans ?_
  rw [val127_main_arg0 V0, val127_main_v3 V0, val127_main_arg2 V0, val127_main_arg3 V0, val127_h V0, val127_y V0]
  rw [← hI_at (aX V0) (aA V0) (aB V0) 126 127 (by decide) rfl]
  exact (yJ_at (aX V0) (aA V0) (aB V0) (aC V0) 127 128 (by decide) rfl).symm
/-- The contents after step 128. -/
def val129 (V0 : Valuation τ sig (Elt Ideal)) : Valuation τ sig (Elt Ideal) := after (stepOps128 (F := Ideal)) (val128 V0)
theorem val129_main_arg0 (V0 : Valuation τ sig (Elt Ideal)) : val129 V0 (Proc.devRef .tc main_arg0) = aX V0 :=
  (after_keep _ 10 stepOps128_ok main_arg0 (by decide +kernel) (val128 V0)).trans (val128_main_arg0 V0)
theorem val129_main_arg1 (V0 : Valuation τ sig (Elt Ideal)) : val129 V0 (Proc.devRef .tc main_arg1) = aA V0 :=
  (after_keep _ 10 stepOps128_ok main_arg1 (by decide +kernel) (val128 V0)).trans (val128_main_arg1 V0)
theorem val129_main_arg2 (V0 : Valuation τ sig (Elt Ideal)) : val129 V0 (Proc.devRef .tc main_arg2) = aB V0 :=
  (after_keep _ 10 stepOps128_ok main_arg2 (by decide +kernel) (val128 V0)).trans (val128_main_arg2 V0)
theorem val129_main_arg3 (V0 : Valuation τ sig (Elt Ideal)) : val129 V0 (Proc.devRef .tc main_arg3) = aC V0 :=
  (after_keep _ 10 stepOps128_ok main_arg3 (by decide +kernel) (val128 V0)).trans (val128_main_arg3 V0)
theorem val129_main_v3 (V0 : Valuation τ sig (Elt Ideal)) : val129 V0 (Proc.devRef .tc main_v3) = decay (aA V0) :=
  (after_keep _ 10 stepOps128_ok main_v3 (by decide +kernel) (val128 V0)).trans (val128_main_v3 V0)
theorem val129_h (V0 : Valuation τ sig (Elt Ideal)) : val129 V0 (Proc.devRef .tc main_v2575) = hI (aX V0) (aA V0) (aB V0) 128 := by
  refine ((step128_val (val128 V0)).1).trans ?_
  rw [val128_main_arg0 V0, val128_main_v3 V0, val128_main_arg2 V0, val128_h V0]
  exact (hI_at (aX V0) (aA V0) (aB V0) 127 128 (by decide) rfl).symm
theorem val129_y (V0 : Valuation τ sig (Elt Ideal)) : val129 V0 (Proc.devRef .tc main_v2583) = yJ (aX V0) (aA V0) (aB V0) (aC V0) 129 := by
  refine ((step128_val (val128 V0)).2).trans ?_
  rw [val128_main_arg0 V0, val128_main_v3 V0, val128_main_arg2 V0, val128_main_arg3 V0, val128_h V0, val128_y V0]
  rw [← hI_at (aX V0) (aA V0) (aB V0) 127 128 (by decide) rfl]
  exact (yJ_at (aX V0) (aA V0) (aB V0) (aC V0) 128 129 (by decide) rfl).symm
/-- The contents after step 129. -/
def val130 (V0 : Valuation τ sig (Elt Ideal)) : Valuation τ sig (Elt Ideal) := after (stepOps129 (F := Ideal)) (val129 V0)
theorem val130_main_arg0 (V0 : Valuation τ sig (Elt Ideal)) : val130 V0 (Proc.devRef .tc main_arg0) = aX V0 :=
  (after_keep _ 10 stepOps129_ok main_arg0 (by decide +kernel) (val129 V0)).trans (val129_main_arg0 V0)
theorem val130_main_arg1 (V0 : Valuation τ sig (Elt Ideal)) : val130 V0 (Proc.devRef .tc main_arg1) = aA V0 :=
  (after_keep _ 10 stepOps129_ok main_arg1 (by decide +kernel) (val129 V0)).trans (val129_main_arg1 V0)
theorem val130_main_arg2 (V0 : Valuation τ sig (Elt Ideal)) : val130 V0 (Proc.devRef .tc main_arg2) = aB V0 :=
  (after_keep _ 10 stepOps129_ok main_arg2 (by decide +kernel) (val129 V0)).trans (val129_main_arg2 V0)
theorem val130_main_arg3 (V0 : Valuation τ sig (Elt Ideal)) : val130 V0 (Proc.devRef .tc main_arg3) = aC V0 :=
  (after_keep _ 10 stepOps129_ok main_arg3 (by decide +kernel) (val129 V0)).trans (val129_main_arg3 V0)
theorem val130_main_v3 (V0 : Valuation τ sig (Elt Ideal)) : val130 V0 (Proc.devRef .tc main_v3) = decay (aA V0) :=
  (after_keep _ 10 stepOps129_ok main_v3 (by decide +kernel) (val129 V0)).trans (val129_main_v3 V0)
theorem val130_h (V0 : Valuation τ sig (Elt Ideal)) : val130 V0 (Proc.devRef .tc main_v2595) = hI (aX V0) (aA V0) (aB V0) 129 := by
  refine ((step129_val (val129 V0)).1).trans ?_
  rw [val129_main_arg0 V0, val129_main_v3 V0, val129_main_arg2 V0, val129_h V0]
  exact (hI_at (aX V0) (aA V0) (aB V0) 128 129 (by decide) rfl).symm
theorem val130_y (V0 : Valuation τ sig (Elt Ideal)) : val130 V0 (Proc.devRef .tc main_v2603) = yJ (aX V0) (aA V0) (aB V0) (aC V0) 130 := by
  refine ((step129_val (val129 V0)).2).trans ?_
  rw [val129_main_arg0 V0, val129_main_v3 V0, val129_main_arg2 V0, val129_main_arg3 V0, val129_h V0, val129_y V0]
  rw [← hI_at (aX V0) (aA V0) (aB V0) 128 129 (by decide) rfl]
  exact (yJ_at (aX V0) (aA V0) (aB V0) (aC V0) 129 130 (by decide) rfl).symm
/-- The contents after step 130. -/
def val131 (V0 : Valuation τ sig (Elt Ideal)) : Valuation τ sig (Elt Ideal) := after (stepOps130 (F := Ideal)) (val130 V0)
theorem val131_main_arg0 (V0 : Valuation τ sig (Elt Ideal)) : val131 V0 (Proc.devRef .tc main_arg0) = aX V0 :=
  (after_keep _ 10 stepOps130_ok main_arg0 (by decide +kernel) (val130 V0)).trans (val130_main_arg0 V0)
theorem val131_main_arg1 (V0 : Valuation τ sig (Elt Ideal)) : val131 V0 (Proc.devRef .tc main_arg1) = aA V0 :=
  (after_keep _ 10 stepOps130_ok main_arg1 (by decide +kernel) (val130 V0)).trans (val130_main_arg1 V0)
theorem val131_main_arg2 (V0 : Valuation τ sig (Elt Ideal)) : val131 V0 (Proc.devRef .tc main_arg2) = aB V0 :=
  (after_keep _ 10 stepOps130_ok main_arg2 (by decide +kernel) (val130 V0)).trans (val130_main_arg2 V0)
theorem val131_main_arg3 (V0 : Valuation τ sig (Elt Ideal)) : val131 V0 (Proc.devRef .tc main_arg3) = aC V0 :=
  (after_keep _ 10 stepOps130_ok main_arg3 (by decide +kernel) (val130 V0)).trans (val130_main_arg3 V0)
theorem val131_main_v3 (V0 : Valuation τ sig (Elt Ideal)) : val131 V0 (Proc.devRef .tc main_v3) = decay (aA V0) :=
  (after_keep _ 10 stepOps130_ok main_v3 (by decide +kernel) (val130 V0)).trans (val130_main_v3 V0)
theorem val131_h (V0 : Valuation τ sig (Elt Ideal)) : val131 V0 (Proc.devRef .tc main_v2615) = hI (aX V0) (aA V0) (aB V0) 130 := by
  refine ((step130_val (val130 V0)).1).trans ?_
  rw [val130_main_arg0 V0, val130_main_v3 V0, val130_main_arg2 V0, val130_h V0]
  exact (hI_at (aX V0) (aA V0) (aB V0) 129 130 (by decide) rfl).symm
theorem val131_y (V0 : Valuation τ sig (Elt Ideal)) : val131 V0 (Proc.devRef .tc main_v2623) = yJ (aX V0) (aA V0) (aB V0) (aC V0) 131 := by
  refine ((step130_val (val130 V0)).2).trans ?_
  rw [val130_main_arg0 V0, val130_main_v3 V0, val130_main_arg2 V0, val130_main_arg3 V0, val130_h V0, val130_y V0]
  rw [← hI_at (aX V0) (aA V0) (aB V0) 129 130 (by decide) rfl]
  exact (yJ_at (aX V0) (aA V0) (aB V0) (aC V0) 130 131 (by decide) rfl).symm
/-- The contents after step 131. -/
def val132 (V0 : Valuation τ sig (Elt Ideal)) : Valuation τ sig (Elt Ideal) := after (stepOps131 (F := Ideal)) (val131 V0)
theorem val132_main_arg0 (V0 : Valuation τ sig (Elt Ideal)) : val132 V0 (Proc.devRef .tc main_arg0) = aX V0 :=
  (after_keep _ 10 stepOps131_ok main_arg0 (by decide +kernel) (val131 V0)).trans (val131_main_arg0 V0)
theorem val132_main_arg1 (V0 : Valuation τ sig (Elt Ideal)) : val132 V0 (Proc.devRef .tc main_arg1) = aA V0 :=
  (after_keep _ 10 stepOps131_ok main_arg1 (by decide +kernel) (val131 V0)).trans (val131_main_arg1 V0)
theorem val132_main_arg2 (V0 : Valuation τ sig (Elt Ideal)) : val132 V0 (Proc.devRef .tc main_arg2) = aB V0 :=
  (after_keep _ 10 stepOps131_ok main_arg2 (by decide +kernel) (val131 V0)).trans (val131_main_arg2 V0)
theorem val132_main_arg3 (V0 : Valuation τ sig (Elt Ideal)) : val132 V0 (Proc.devRef .tc main_arg3) = aC V0 :=
  (after_keep _ 10 stepOps131_ok main_arg3 (by decide +kernel) (val131 V0)).trans (val131_main_arg3 V0)
theorem val132_main_v3 (V0 : Valuation τ sig (Elt Ideal)) : val132 V0 (Proc.devRef .tc main_v3) = decay (aA V0) :=
  (after_keep _ 10 stepOps131_ok main_v3 (by decide +kernel) (val131 V0)).trans (val131_main_v3 V0)
theorem val132_h (V0 : Valuation τ sig (Elt Ideal)) : val132 V0 (Proc.devRef .tc main_v2635) = hI (aX V0) (aA V0) (aB V0) 131 := by
  refine ((step131_val (val131 V0)).1).trans ?_
  rw [val131_main_arg0 V0, val131_main_v3 V0, val131_main_arg2 V0, val131_h V0]
  exact (hI_at (aX V0) (aA V0) (aB V0) 130 131 (by decide) rfl).symm
theorem val132_y (V0 : Valuation τ sig (Elt Ideal)) : val132 V0 (Proc.devRef .tc main_v2643) = yJ (aX V0) (aA V0) (aB V0) (aC V0) 132 := by
  refine ((step131_val (val131 V0)).2).trans ?_
  rw [val131_main_arg0 V0, val131_main_v3 V0, val131_main_arg2 V0, val131_main_arg3 V0, val131_h V0, val131_y V0]
  rw [← hI_at (aX V0) (aA V0) (aB V0) 130 131 (by decide) rfl]
  exact (yJ_at (aX V0) (aA V0) (aB V0) (aC V0) 131 132 (by decide) rfl).symm
/-- The contents after step 132. -/
def val133 (V0 : Valuation τ sig (Elt Ideal)) : Valuation τ sig (Elt Ideal) := after (stepOps132 (F := Ideal)) (val132 V0)
theorem val133_main_arg0 (V0 : Valuation τ sig (Elt Ideal)) : val133 V0 (Proc.devRef .tc main_arg0) = aX V0 :=
  (after_keep _ 10 stepOps132_ok main_arg0 (by decide +kernel) (val132 V0)).trans (val132_main_arg0 V0)
theorem val133_main_arg1 (V0 : Valuation τ sig (Elt Ideal)) : val133 V0 (Proc.devRef .tc main_arg1) = aA V0 :=
  (after_keep _ 10 stepOps132_ok main_arg1 (by decide +kernel) (val132 V0)).trans (val132_main_arg1 V0)
theorem val133_main_arg2 (V0 : Valuation τ sig (Elt Ideal)) : val133 V0 (Proc.devRef .tc main_arg2) = aB V0 :=
  (after_keep _ 10 stepOps132_ok main_arg2 (by decide +kernel) (val132 V0)).trans (val132_main_arg2 V0)
theorem val133_main_arg3 (V0 : Valuation τ sig (Elt Ideal)) : val133 V0 (Proc.devRef .tc main_arg3) = aC V0 :=
  (after_keep _ 10 stepOps132_ok main_arg3 (by decide +kernel) (val132 V0)).trans (val132_main_arg3 V0)
theorem val133_main_v3 (V0 : Valuation τ sig (Elt Ideal)) : val133 V0 (Proc.devRef .tc main_v3) = decay (aA V0) :=
  (after_keep _ 10 stepOps132_ok main_v3 (by decide +kernel) (val132 V0)).trans (val132_main_v3 V0)
theorem val133_h (V0 : Valuation τ sig (Elt Ideal)) : val133 V0 (Proc.devRef .tc main_v2655) = hI (aX V0) (aA V0) (aB V0) 132 := by
  refine ((step132_val (val132 V0)).1).trans ?_
  rw [val132_main_arg0 V0, val132_main_v3 V0, val132_main_arg2 V0, val132_h V0]
  exact (hI_at (aX V0) (aA V0) (aB V0) 131 132 (by decide) rfl).symm
theorem val133_y (V0 : Valuation τ sig (Elt Ideal)) : val133 V0 (Proc.devRef .tc main_v2663) = yJ (aX V0) (aA V0) (aB V0) (aC V0) 133 := by
  refine ((step132_val (val132 V0)).2).trans ?_
  rw [val132_main_arg0 V0, val132_main_v3 V0, val132_main_arg2 V0, val132_main_arg3 V0, val132_h V0, val132_y V0]
  rw [← hI_at (aX V0) (aA V0) (aB V0) 131 132 (by decide) rfl]
  exact (yJ_at (aX V0) (aA V0) (aB V0) (aC V0) 132 133 (by decide) rfl).symm
/-- The contents after step 133. -/
def val134 (V0 : Valuation τ sig (Elt Ideal)) : Valuation τ sig (Elt Ideal) := after (stepOps133 (F := Ideal)) (val133 V0)
theorem val134_main_arg0 (V0 : Valuation τ sig (Elt Ideal)) : val134 V0 (Proc.devRef .tc main_arg0) = aX V0 :=
  (after_keep _ 10 stepOps133_ok main_arg0 (by decide +kernel) (val133 V0)).trans (val133_main_arg0 V0)
theorem val134_main_arg1 (V0 : Valuation τ sig (Elt Ideal)) : val134 V0 (Proc.devRef .tc main_arg1) = aA V0 :=
  (after_keep _ 10 stepOps133_ok main_arg1 (by decide +kernel) (val133 V0)).trans (val133_main_arg1 V0)
theorem val134_main_arg2 (V0 : Valuation τ sig (Elt Ideal)) : val134 V0 (Proc.devRef .tc main_arg2) = aB V0 :=
  (after_keep _ 10 stepOps133_ok main_arg2 (by decide +kernel) (val133 V0)).trans (val133_main_arg2 V0)
theorem val134_main_arg3 (V0 : Valuation τ sig (Elt Ideal)) : val134 V0 (Proc.devRef .tc main_arg3) = aC V0 :=
  (after_keep _ 10 stepOps133_ok main_arg3 (by decide +kernel) (val133 V0)).trans (val133_main_arg3 V0)
theorem val134_main_v3 (V0 : Valuation τ sig (Elt Ideal)) : val134 V0 (Proc.devRef .tc main_v3) = decay (aA V0) :=
  (after_keep _ 10 stepOps133_ok main_v3 (by decide +kernel) (val133 V0)).trans (val133_main_v3 V0)
theorem val134_h (V0 : Valuation τ sig (Elt Ideal)) : val134 V0 (Proc.devRef .tc main_v2675) = hI (aX V0) (aA V0) (aB V0) 133 := by
  refine ((step133_val (val133 V0)).1).trans ?_
  rw [val133_main_arg0 V0, val133_main_v3 V0, val133_main_arg2 V0, val133_h V0]
  exact (hI_at (aX V0) (aA V0) (aB V0) 132 133 (by decide) rfl).symm
theorem val134_y (V0 : Valuation τ sig (Elt Ideal)) : val134 V0 (Proc.devRef .tc main_v2683) = yJ (aX V0) (aA V0) (aB V0) (aC V0) 134 := by
  refine ((step133_val (val133 V0)).2).trans ?_
  rw [val133_main_arg0 V0, val133_main_v3 V0, val133_main_arg2 V0, val133_main_arg3 V0, val133_h V0, val133_y V0]
  rw [← hI_at (aX V0) (aA V0) (aB V0) 132 133 (by decide) rfl]
  exact (yJ_at (aX V0) (aA V0) (aB V0) (aC V0) 133 134 (by decide) rfl).symm
/-- The contents after step 134. -/
def val135 (V0 : Valuation τ sig (Elt Ideal)) : Valuation τ sig (Elt Ideal) := after (stepOps134 (F := Ideal)) (val134 V0)
theorem val135_main_arg0 (V0 : Valuation τ sig (Elt Ideal)) : val135 V0 (Proc.devRef .tc main_arg0) = aX V0 :=
  (after_keep _ 10 stepOps134_ok main_arg0 (by decide +kernel) (val134 V0)).trans (val134_main_arg0 V0)
theorem val135_main_arg1 (V0 : Valuation τ sig (Elt Ideal)) : val135 V0 (Proc.devRef .tc main_arg1) = aA V0 :=
  (after_keep _ 10 stepOps134_ok main_arg1 (by decide +kernel) (val134 V0)).trans (val134_main_arg1 V0)
theorem val135_main_arg2 (V0 : Valuation τ sig (Elt Ideal)) : val135 V0 (Proc.devRef .tc main_arg2) = aB V0 :=
  (after_keep _ 10 stepOps134_ok main_arg2 (by decide +kernel) (val134 V0)).trans (val134_main_arg2 V0)
theorem val135_main_arg3 (V0 : Valuation τ sig (Elt Ideal)) : val135 V0 (Proc.devRef .tc main_arg3) = aC V0 :=
  (after_keep _ 10 stepOps134_ok main_arg3 (by decide +kernel) (val134 V0)).trans (val134_main_arg3 V0)
theorem val135_main_v3 (V0 : Valuation τ sig (Elt Ideal)) : val135 V0 (Proc.devRef .tc main_v3) = decay (aA V0) :=
  (after_keep _ 10 stepOps134_ok main_v3 (by decide +kernel) (val134 V0)).trans (val134_main_v3 V0)
theorem val135_h (V0 : Valuation τ sig (Elt Ideal)) : val135 V0 (Proc.devRef .tc main_v2695) = hI (aX V0) (aA V0) (aB V0) 134 := by
  refine ((step134_val (val134 V0)).1).trans ?_
  rw [val134_main_arg0 V0, val134_main_v3 V0, val134_main_arg2 V0, val134_h V0]
  exact (hI_at (aX V0) (aA V0) (aB V0) 133 134 (by decide) rfl).symm
theorem val135_y (V0 : Valuation τ sig (Elt Ideal)) : val135 V0 (Proc.devRef .tc main_v2703) = yJ (aX V0) (aA V0) (aB V0) (aC V0) 135 := by
  refine ((step134_val (val134 V0)).2).trans ?_
  rw [val134_main_arg0 V0, val134_main_v3 V0, val134_main_arg2 V0, val134_main_arg3 V0, val134_h V0, val134_y V0]
  rw [← hI_at (aX V0) (aA V0) (aB V0) 133 134 (by decide) rfl]
  exact (yJ_at (aX V0) (aA V0) (aB V0) (aC V0) 134 135 (by decide) rfl).symm
/-- The contents after step 135. -/
def val136 (V0 : Valuation τ sig (Elt Ideal)) : Valuation τ sig (Elt Ideal) := after (stepOps135 (F := Ideal)) (val135 V0)
theorem val136_main_arg0 (V0 : Valuation τ sig (Elt Ideal)) : val136 V0 (Proc.devRef .tc main_arg0) = aX V0 :=
  (after_keep _ 10 stepOps135_ok main_arg0 (by decide +kernel) (val135 V0)).trans (val135_main_arg0 V0)
theorem val136_main_arg1 (V0 : Valuation τ sig (Elt Ideal)) : val136 V0 (Proc.devRef .tc main_arg1) = aA V0 :=
  (after_keep _ 10 stepOps135_ok main_arg1 (by decide +kernel) (val135 V0)).trans (val135_main_arg1 V0)
theorem val136_main_arg2 (V0 : Valuation τ sig (Elt Ideal)) : val136 V0 (Proc.devRef .tc main_arg2) = aB V0 :=
  (after_keep _ 10 stepOps135_ok main_arg2 (by decide +kernel) (val135 V0)).trans (val135_main_arg2 V0)
theorem val136_main_arg3 (V0 : Valuation τ sig (Elt Ideal)) : val136 V0 (Proc.devRef .tc main_arg3) = aC V0 :=
  (after_keep _ 10 stepOps135_ok main_arg3 (by decide +kernel) (val135 V0)).trans (val135_main_arg3 V0)
theorem val136_main_v3 (V0 : Valuation τ sig (Elt Ideal)) : val136 V0 (Proc.devRef .tc main_v3) = decay (aA V0) :=
  (after_keep _ 10 stepOps135_ok main_v3 (by decide +kernel) (val135 V0)).trans (val135_main_v3 V0)
theorem val136_h (V0 : Valuation τ sig (Elt Ideal)) : val136 V0 (Proc.devRef .tc main_v2715) = hI (aX V0) (aA V0) (aB V0) 135 := by
  refine ((step135_val (val135 V0)).1).trans ?_
  rw [val135_main_arg0 V0, val135_main_v3 V0, val135_main_arg2 V0, val135_h V0]
  exact (hI_at (aX V0) (aA V0) (aB V0) 134 135 (by decide) rfl).symm
theorem val136_y (V0 : Valuation τ sig (Elt Ideal)) : val136 V0 (Proc.devRef .tc main_v2723) = yJ (aX V0) (aA V0) (aB V0) (aC V0) 136 := by
  refine ((step135_val (val135 V0)).2).trans ?_
  rw [val135_main_arg0 V0, val135_main_v3 V0, val135_main_arg2 V0, val135_main_arg3 V0, val135_h V0, val135_y V0]
  rw [← hI_at (aX V0) (aA V0) (aB V0) 134 135 (by decide) rfl]
  exact (yJ_at (aX V0) (aA V0) (aB V0) (aC V0) 135 136 (by decide) rfl).symm
/-- The contents after step 136. -/
def val137 (V0 : Valuation τ sig (Elt Ideal)) : Valuation τ sig (Elt Ideal) := after (stepOps136 (F := Ideal)) (val136 V0)
theorem val137_main_arg0 (V0 : Valuation τ sig (Elt Ideal)) : val137 V0 (Proc.devRef .tc main_arg0) = aX V0 :=
  (after_keep _ 10 stepOps136_ok main_arg0 (by decide +kernel) (val136 V0)).trans (val136_main_arg0 V0)
theorem val137_main_arg1 (V0 : Valuation τ sig (Elt Ideal)) : val137 V0 (Proc.devRef .tc main_arg1) = aA V0 :=
  (after_keep _ 10 stepOps136_ok main_arg1 (by decide +kernel) (val136 V0)).trans (val136_main_arg1 V0)
theorem val137_main_arg2 (V0 : Valuation τ sig (Elt Ideal)) : val137 V0 (Proc.devRef .tc main_arg2) = aB V0 :=
  (after_keep _ 10 stepOps136_ok main_arg2 (by decide +kernel) (val136 V0)).trans (val136_main_arg2 V0)
theorem val137_main_arg3 (V0 : Valuation τ sig (Elt Ideal)) : val137 V0 (Proc.devRef .tc main_arg3) = aC V0 :=
  (after_keep _ 10 stepOps136_ok main_arg3 (by decide +kernel) (val136 V0)).trans (val136_main_arg3 V0)
theorem val137_main_v3 (V0 : Valuation τ sig (Elt Ideal)) : val137 V0 (Proc.devRef .tc main_v3) = decay (aA V0) :=
  (after_keep _ 10 stepOps136_ok main_v3 (by decide +kernel) (val136 V0)).trans (val136_main_v3 V0)
theorem val137_h (V0 : Valuation τ sig (Elt Ideal)) : val137 V0 (Proc.devRef .tc main_v2735) = hI (aX V0) (aA V0) (aB V0) 136 := by
  refine ((step136_val (val136 V0)).1).trans ?_
  rw [val136_main_arg0 V0, val136_main_v3 V0, val136_main_arg2 V0, val136_h V0]
  exact (hI_at (aX V0) (aA V0) (aB V0) 135 136 (by decide) rfl).symm
theorem val137_y (V0 : Valuation τ sig (Elt Ideal)) : val137 V0 (Proc.devRef .tc main_v2743) = yJ (aX V0) (aA V0) (aB V0) (aC V0) 137 := by
  refine ((step136_val (val136 V0)).2).trans ?_
  rw [val136_main_arg0 V0, val136_main_v3 V0, val136_main_arg2 V0, val136_main_arg3 V0, val136_h V0, val136_y V0]
  rw [← hI_at (aX V0) (aA V0) (aB V0) 135 136 (by decide) rfl]
  exact (yJ_at (aX V0) (aA V0) (aB V0) (aC V0) 136 137 (by decide) rfl).symm
/-- The contents after step 137. -/
def val138 (V0 : Valuation τ sig (Elt Ideal)) : Valuation τ sig (Elt Ideal) := after (stepOps137 (F := Ideal)) (val137 V0)
theorem val138_main_arg0 (V0 : Valuation τ sig (Elt Ideal)) : val138 V0 (Proc.devRef .tc main_arg0) = aX V0 :=
  (after_keep _ 10 stepOps137_ok main_arg0 (by decide +kernel) (val137 V0)).trans (val137_main_arg0 V0)
theorem val138_main_arg1 (V0 : Valuation τ sig (Elt Ideal)) : val138 V0 (Proc.devRef .tc main_arg1) = aA V0 :=
  (after_keep _ 10 stepOps137_ok main_arg1 (by decide +kernel) (val137 V0)).trans (val137_main_arg1 V0)
theorem val138_main_arg2 (V0 : Valuation τ sig (Elt Ideal)) : val138 V0 (Proc.devRef .tc main_arg2) = aB V0 :=
  (after_keep _ 10 stepOps137_ok main_arg2 (by decide +kernel) (val137 V0)).trans (val137_main_arg2 V0)
theorem val138_main_arg3 (V0 : Valuation τ sig (Elt Ideal)) : val138 V0 (Proc.devRef .tc main_arg3) = aC V0 :=
  (after_keep _ 10 stepOps137_ok main_arg3 (by decide +kernel) (val137 V0)).trans (val137_main_arg3 V0)
theorem val138_main_v3 (V0 : Valuation τ sig (Elt Ideal)) : val138 V0 (Proc.devRef .tc main_v3) = decay (aA V0) :=
  (after_keep _ 10 stepOps137_ok main_v3 (by decide +kernel) (val137 V0)).trans (val137_main_v3 V0)
theorem val138_h (V0 : Valuation τ sig (Elt Ideal)) : val138 V0 (Proc.devRef .tc main_v2755) = hI (aX V0) (aA V0) (aB V0) 137 := by
  refine ((step137_val (val137 V0)).1).trans ?_
  rw [val137_main_arg0 V0, val137_main_v3 V0, val137_main_arg2 V0, val137_h V0]
  exact (hI_at (aX V0) (aA V0) (aB V0) 136 137 (by decide) rfl).symm
theorem val138_y (V0 : Valuation τ sig (Elt Ideal)) : val138 V0 (Proc.devRef .tc main_v2763) = yJ (aX V0) (aA V0) (aB V0) (aC V0) 138 := by
  refine ((step137_val (val137 V0)).2).trans ?_
  rw [val137_main_arg0 V0, val137_main_v3 V0, val137_main_arg2 V0, val137_main_arg3 V0, val137_h V0, val137_y V0]
  rw [← hI_at (aX V0) (aA V0) (aB V0) 136 137 (by decide) rfl]
  exact (yJ_at (aX V0) (aA V0) (aB V0) (aC V0) 137 138 (by decide) rfl).symm
/-- The contents after step 138. -/
def val139 (V0 : Valuation τ sig (Elt Ideal)) : Valuation τ sig (Elt Ideal) := after (stepOps138 (F := Ideal)) (val138 V0)
theorem val139_main_arg0 (V0 : Valuation τ sig (Elt Ideal)) : val139 V0 (Proc.devRef .tc main_arg0) = aX V0 :=
  (after_keep _ 10 stepOps138_ok main_arg0 (by decide +kernel) (val138 V0)).trans (val138_main_arg0 V0)
theorem val139_main_arg1 (V0 : Valuation τ sig (Elt Ideal)) : val139 V0 (Proc.devRef .tc main_arg1) = aA V0 :=
  (after_keep _ 10 stepOps138_ok main_arg1 (by decide +kernel) (val138 V0)).trans (val138_main_arg1 V0)
theorem val139_main_arg2 (V0 : Valuation τ sig (Elt Ideal)) : val139 V0 (Proc.devRef .tc main_arg2) = aB V0 :=
  (after_keep _ 10 stepOps138_ok main_arg2 (by decide +kernel) (val138 V0)).trans (val138_main_arg2 V0)
theorem val139_main_arg3 (V0 : Valuation τ sig (Elt Ideal)) : val139 V0 (Proc.devRef .tc main_arg3) = aC V0 :=
  (after_keep _ 10 stepOps138_ok main_arg3 (by decide +kernel) (val138 V0)).trans (val138_main_arg3 V0)
theorem val139_main_v3 (V0 : Valuation τ sig (Elt Ideal)) : val139 V0 (Proc.devRef .tc main_v3) = decay (aA V0) :=
  (after_keep _ 10 stepOps138_ok main_v3 (by decide +kernel) (val138 V0)).trans (val138_main_v3 V0)
theorem val139_h (V0 : Valuation τ sig (Elt Ideal)) : val139 V0 (Proc.devRef .tc main_v2775) = hI (aX V0) (aA V0) (aB V0) 138 := by
  refine ((step138_val (val138 V0)).1).trans ?_
  rw [val138_main_arg0 V0, val138_main_v3 V0, val138_main_arg2 V0, val138_h V0]
  exact (hI_at (aX V0) (aA V0) (aB V0) 137 138 (by decide) rfl).symm
theorem val139_y (V0 : Valuation τ sig (Elt Ideal)) : val139 V0 (Proc.devRef .tc main_v2783) = yJ (aX V0) (aA V0) (aB V0) (aC V0) 139 := by
  refine ((step138_val (val138 V0)).2).trans ?_
  rw [val138_main_arg0 V0, val138_main_v3 V0, val138_main_arg2 V0, val138_main_arg3 V0, val138_h V0, val138_y V0]
  rw [← hI_at (aX V0) (aA V0) (aB V0) 137 138 (by decide) rfl]
  exact (yJ_at (aX V0) (aA V0) (aB V0) (aC V0) 138 139 (by decide) rfl).symm
/-- The contents after step 139. -/
def val140 (V0 : Valuation τ sig (Elt Ideal)) : Valuation τ sig (Elt Ideal) := after (stepOps139 (F := Ideal)) (val139 V0)
theorem val140_main_arg0 (V0 : Valuation τ sig (Elt Ideal)) : val140 V0 (Proc.devRef .tc main_arg0) = aX V0 :=
  (after_keep _ 10 stepOps139_ok main_arg0 (by decide +kernel) (val139 V0)).trans (val139_main_arg0 V0)
theorem val140_main_arg1 (V0 : Valuation τ sig (Elt Ideal)) : val140 V0 (Proc.devRef .tc main_arg1) = aA V0 :=
  (after_keep _ 10 stepOps139_ok main_arg1 (by decide +kernel) (val139 V0)).trans (val139_main_arg1 V0)
theorem val140_main_arg2 (V0 : Valuation τ sig (Elt Ideal)) : val140 V0 (Proc.devRef .tc main_arg2) = aB V0 :=
  (after_keep _ 10 stepOps139_ok main_arg2 (by decide +kernel) (val139 V0)).trans (val139_main_arg2 V0)
theorem val140_main_arg3 (V0 : Valuation τ sig (Elt Ideal)) : val140 V0 (Proc.devRef .tc main_arg3) = aC V0 :=
  (after_keep _ 10 stepOps139_ok main_arg3 (by decide +kernel) (val139 V0)).trans (val139_main_arg3 V0)
theorem val140_main_v3 (V0 : Valuation τ sig (Elt Ideal)) : val140 V0 (Proc.devRef .tc main_v3) = decay (aA V0) :=
  (after_keep _ 10 stepOps139_ok main_v3 (by decide +kernel) (val139 V0)).trans (val139_main_v3 V0)
theorem val140_h (V0 : Valuation τ sig (Elt Ideal)) : val140 V0 (Proc.devRef .tc main_v2795) = hI (aX V0) (aA V0) (aB V0) 139 := by
  refine ((step139_val (val139 V0)).1).trans ?_
  rw [val139_main_arg0 V0, val139_main_v3 V0, val139_main_arg2 V0, val139_h V0]
  exact (hI_at (aX V0) (aA V0) (aB V0) 138 139 (by decide) rfl).symm
theorem val140_y (V0 : Valuation τ sig (Elt Ideal)) : val140 V0 (Proc.devRef .tc main_v2803) = yJ (aX V0) (aA V0) (aB V0) (aC V0) 140 := by
  refine ((step139_val (val139 V0)).2).trans ?_
  rw [val139_main_arg0 V0, val139_main_v3 V0, val139_main_arg2 V0, val139_main_arg3 V0, val139_h V0, val139_y V0]
  rw [← hI_at (aX V0) (aA V0) (aB V0) 138 139 (by decide) rfl]
  exact (yJ_at (aX V0) (aA V0) (aB V0) (aC V0) 139 140 (by decide) rfl).symm
/-- The contents after step 140. -/
def val141 (V0 : Valuation τ sig (Elt Ideal)) : Valuation τ sig (Elt Ideal) := after (stepOps140 (F := Ideal)) (val140 V0)
theorem val141_main_arg0 (V0 : Valuation τ sig (Elt Ideal)) : val141 V0 (Proc.devRef .tc main_arg0) = aX V0 :=
  (after_keep _ 10 stepOps140_ok main_arg0 (by decide +kernel) (val140 V0)).trans (val140_main_arg0 V0)
theorem val141_main_arg1 (V0 : Valuation τ sig (Elt Ideal)) : val141 V0 (Proc.devRef .tc main_arg1) = aA V0 :=
  (after_keep _ 10 stepOps140_ok main_arg1 (by decide +kernel) (val140 V0)).trans (val140_main_arg1 V0)
theorem val141_main_arg2 (V0 : Valuation τ sig (Elt Ideal)) : val141 V0 (Proc.devRef .tc main_arg2) = aB V0 :=
  (after_keep _ 10 stepOps140_ok main_arg2 (by decide +kernel) (val140 V0)).trans (val140_main_arg2 V0)
theorem val141_main_arg3 (V0 : Valuation τ sig (Elt Ideal)) : val141 V0 (Proc.devRef .tc main_arg3) = aC V0 :=
  (after_keep _ 10 stepOps140_ok main_arg3 (by decide +kernel) (val140 V0)).trans (val140_main_arg3 V0)
theorem val141_main_v3 (V0 : Valuation τ sig (Elt Ideal)) : val141 V0 (Proc.devRef .tc main_v3) = decay (aA V0) :=
  (after_keep _ 10 stepOps140_ok main_v3 (by decide +kernel) (val140 V0)).trans (val140_main_v3 V0)
theorem val141_h (V0 : Valuation τ sig (Elt Ideal)) : val141 V0 (Proc.devRef .tc main_v2815) = hI (aX V0) (aA V0) (aB V0) 140 := by
  refine ((step140_val (val140 V0)).1).trans ?_
  rw [val140_main_arg0 V0, val140_main_v3 V0, val140_main_arg2 V0, val140_h V0]
  exact (hI_at (aX V0) (aA V0) (aB V0) 139 140 (by decide) rfl).symm
theorem val141_y (V0 : Valuation τ sig (Elt Ideal)) : val141 V0 (Proc.devRef .tc main_v2823) = yJ (aX V0) (aA V0) (aB V0) (aC V0) 141 := by
  refine ((step140_val (val140 V0)).2).trans ?_
  rw [val140_main_arg0 V0, val140_main_v3 V0, val140_main_arg2 V0, val140_main_arg3 V0, val140_h V0, val140_y V0]
  rw [← hI_at (aX V0) (aA V0) (aB V0) 139 140 (by decide) rfl]
  exact (yJ_at (aX V0) (aA V0) (aB V0) (aC V0) 140 141 (by decide) rfl).symm
/-- The contents after step 141. -/
def val142 (V0 : Valuation τ sig (Elt Ideal)) : Valuation τ sig (Elt Ideal) := after (stepOps141 (F := Ideal)) (val141 V0)
theorem val142_main_arg0 (V0 : Valuation τ sig (Elt Ideal)) : val142 V0 (Proc.devRef .tc main_arg0) = aX V0 :=
  (after_keep _ 10 stepOps141_ok main_arg0 (by decide +kernel) (val141 V0)).trans (val141_main_arg0 V0)
theorem val142_main_arg1 (V0 : Valuation τ sig (Elt Ideal)) : val142 V0 (Proc.devRef .tc main_arg1) = aA V0 :=
  (after_keep _ 10 stepOps141_ok main_arg1 (by decide +kernel) (val141 V0)).trans (val141_main_arg1 V0)
theorem val142_main_arg2 (V0 : Valuation τ sig (Elt Ideal)) : val142 V0 (Proc.devRef .tc main_arg2) = aB V0 :=
  (after_keep _ 10 stepOps141_ok main_arg2 (by decide +kernel) (val141 V0)).trans (val141_main_arg2 V0)
theorem val142_main_arg3 (V0 : Valuation τ sig (Elt Ideal)) : val142 V0 (Proc.devRef .tc main_arg3) = aC V0 :=
  (after_keep _ 10 stepOps141_ok main_arg3 (by decide +kernel) (val141 V0)).trans (val141_main_arg3 V0)
theorem val142_main_v3 (V0 : Valuation τ sig (Elt Ideal)) : val142 V0 (Proc.devRef .tc main_v3) = decay (aA V0) :=
  (after_keep _ 10 stepOps141_ok main_v3 (by decide +kernel) (val141 V0)).trans (val141_main_v3 V0)
theorem val142_h (V0 : Valuation τ sig (Elt Ideal)) : val142 V0 (Proc.devRef .tc main_v2835) = hI (aX V0) (aA V0) (aB V0) 141 := by
  refine ((step141_val (val141 V0)).1).trans ?_
  rw [val141_main_arg0 V0, val141_main_v3 V0, val141_main_arg2 V0, val141_h V0]
  exact (hI_at (aX V0) (aA V0) (aB V0) 140 141 (by decide) rfl).symm
theorem val142_y (V0 : Valuation τ sig (Elt Ideal)) : val142 V0 (Proc.devRef .tc main_v2843) = yJ (aX V0) (aA V0) (aB V0) (aC V0) 142 := by
  refine ((step141_val (val141 V0)).2).trans ?_
  rw [val141_main_arg0 V0, val141_main_v3 V0, val141_main_arg2 V0, val141_main_arg3 V0, val141_h V0, val141_y V0]
  rw [← hI_at (aX V0) (aA V0) (aB V0) 140 141 (by decide) rfl]
  exact (yJ_at (aX V0) (aA V0) (aB V0) (aC V0) 141 142 (by decide) rfl).symm
/-- The contents after step 142. -/
def val143 (V0 : Valuation τ sig (Elt Ideal)) : Valuation τ sig (Elt Ideal) := after (stepOps142 (F := Ideal)) (val142 V0)
theorem val143_main_arg0 (V0 : Valuation τ sig (Elt Ideal)) : val143 V0 (Proc.devRef .tc main_arg0) = aX V0 :=
  (after_keep _ 10 stepOps142_ok main_arg0 (by decide +kernel) (val142 V0)).trans (val142_main_arg0 V0)
theorem val143_main_arg1 (V0 : Valuation τ sig (Elt Ideal)) : val143 V0 (Proc.devRef .tc main_arg1) = aA V0 :=
  (after_keep _ 10 stepOps142_ok main_arg1 (by decide +kernel) (val142 V0)).trans (val142_main_arg1 V0)
theorem val143_main_arg2 (V0 : Valuation τ sig (Elt Ideal)) : val143 V0 (Proc.devRef .tc main_arg2) = aB V0 :=
  (after_keep _ 10 stepOps142_ok main_arg2 (by decide +kernel) (val142 V0)).trans (val142_main_arg2 V0)
theorem val143_main_arg3 (V0 : Valuation τ sig (Elt Ideal)) : val143 V0 (Proc.devRef .tc main_arg3) = aC V0 :=
  (after_keep _ 10 stepOps142_ok main_arg3 (by decide +kernel) (val142 V0)).trans (val142_main_arg3 V0)
theorem val143_main_v3 (V0 : Valuation τ sig (Elt Ideal)) : val143 V0 (Proc.devRef .tc main_v3) = decay (aA V0) :=
  (after_keep _ 10 stepOps142_ok main_v3 (by decide +kernel) (val142 V0)).trans (val142_main_v3 V0)
theorem val143_h (V0 : Valuation τ sig (Elt Ideal)) : val143 V0 (Proc.devRef .tc main_v2855) = hI (aX V0) (aA V0) (aB V0) 142 := by
  refine ((step142_val (val142 V0)).1).trans ?_
  rw [val142_main_arg0 V0, val142_main_v3 V0, val142_main_arg2 V0, val142_h V0]
  exact (hI_at (aX V0) (aA V0) (aB V0) 141 142 (by decide) rfl).symm
theorem val143_y (V0 : Valuation τ sig (Elt Ideal)) : val143 V0 (Proc.devRef .tc main_v2863) = yJ (aX V0) (aA V0) (aB V0) (aC V0) 143 := by
  refine ((step142_val (val142 V0)).2).trans ?_
  rw [val142_main_arg0 V0, val142_main_v3 V0, val142_main_arg2 V0, val142_main_arg3 V0, val142_h V0, val142_y V0]
  rw [← hI_at (aX V0) (aA V0) (aB V0) 141 142 (by decide) rfl]
  exact (yJ_at (aX V0) (aA V0) (aB V0) (aC V0) 142 143 (by decide) rfl).symm
/-- The contents after step 143. -/
def val144 (V0 : Valuation τ sig (Elt Ideal)) : Valuation τ sig (Elt Ideal) := after (stepOps143 (F := Ideal)) (val143 V0)
theorem val144_main_arg0 (V0 : Valuation τ sig (Elt Ideal)) : val144 V0 (Proc.devRef .tc main_arg0) = aX V0 :=
  (after_keep _ 10 stepOps143_ok main_arg0 (by decide +kernel) (val143 V0)).trans (val143_main_arg0 V0)
theorem val144_main_arg1 (V0 : Valuation τ sig (Elt Ideal)) : val144 V0 (Proc.devRef .tc main_arg1) = aA V0 :=
  (after_keep _ 10 stepOps143_ok main_arg1 (by decide +kernel) (val143 V0)).trans (val143_main_arg1 V0)
theorem val144_main_arg2 (V0 : Valuation τ sig (Elt Ideal)) : val144 V0 (Proc.devRef .tc main_arg2) = aB V0 :=
  (after_keep _ 10 stepOps143_ok main_arg2 (by decide +kernel) (val143 V0)).trans (val143_main_arg2 V0)
theorem val144_main_arg3 (V0 : Valuation τ sig (Elt Ideal)) : val144 V0 (Proc.devRef .tc main_arg3) = aC V0 :=
  (after_keep _ 10 stepOps143_ok main_arg3 (by decide +kernel) (val143 V0)).trans (val143_main_arg3 V0)
theorem val144_main_v3 (V0 : Valuation τ sig (Elt Ideal)) : val144 V0 (Proc.devRef .tc main_v3) = decay (aA V0) :=
  (after_keep _ 10 stepOps143_ok main_v3 (by decide +kernel) (val143 V0)).trans (val143_main_v3 V0)
theorem val144_h (V0 : Valuation τ sig (Elt Ideal)) : val144 V0 (Proc.devRef .tc main_v2875) = hI (aX V0) (aA V0) (aB V0) 143 := by
  refine ((step143_val (val143 V0)).1).trans ?_
  rw [val143_main_arg0 V0, val143_main_v3 V0, val143_main_arg2 V0, val143_h V0]
  exact (hI_at (aX V0) (aA V0) (aB V0) 142 143 (by decide) rfl).symm
theorem val144_y (V0 : Valuation τ sig (Elt Ideal)) : val144 V0 (Proc.devRef .tc main_v2883) = yJ (aX V0) (aA V0) (aB V0) (aC V0) 144 := by
  refine ((step143_val (val143 V0)).2).trans ?_
  rw [val143_main_arg0 V0, val143_main_v3 V0, val143_main_arg2 V0, val143_main_arg3 V0, val143_h V0, val143_y V0]
  rw [← hI_at (aX V0) (aA V0) (aB V0) 142 143 (by decide) rfl]
  exact (yJ_at (aX V0) (aA V0) (aB V0) (aC V0) 143 144 (by decide) rfl).symm
/-- The contents after step 144. -/
def val145 (V0 : Valuation τ sig (Elt Ideal)) : Valuation τ sig (Elt Ideal) := after (stepOps144 (F := Ideal)) (val144 V0)
theorem val145_main_arg0 (V0 : Valuation τ sig (Elt Ideal)) : val145 V0 (Proc.devRef .tc main_arg0) = aX V0 :=
  (after_keep _ 10 stepOps144_ok main_arg0 (by decide +kernel) (val144 V0)).trans (val144_main_arg0 V0)
theorem val145_main_arg1 (V0 : Valuation τ sig (Elt Ideal)) : val145 V0 (Proc.devRef .tc main_arg1) = aA V0 :=
  (after_keep _ 10 stepOps144_ok main_arg1 (by decide +kernel) (val144 V0)).trans (val144_main_arg1 V0)
theorem val145_main_arg2 (V0 : Valuation τ sig (Elt Ideal)) : val145 V0 (Proc.devRef .tc main_arg2) = aB V0 :=
  (after_keep _ 10 stepOps144_ok main_arg2 (by decide +kernel) (val144 V0)).trans (val144_main_arg2 V0)
theorem val145_main_arg3 (V0 : Valuation τ sig (Elt Ideal)) : val145 V0 (Proc.devRef .tc main_arg3) = aC V0 :=
  (after_keep _ 10 stepOps144_ok main_arg3 (by decide +kernel) (val144 V0)).trans (val144_main_arg3 V0)
theorem val145_main_v3 (V0 : Valuation τ sig (Elt Ideal)) : val145 V0 (Proc.devRef .tc main_v3) = decay (aA V0) :=
  (after_keep _ 10 stepOps144_ok main_v3 (by decide +kernel) (val144 V0)).trans (val144_main_v3 V0)
theorem val145_h (V0 : Valuation τ sig (Elt Ideal)) : val145 V0 (Proc.devRef .tc main_v2895) = hI (aX V0) (aA V0) (aB V0) 144 := by
  refine ((step144_val (val144 V0)).1).trans ?_
  rw [val144_main_arg0 V0, val144_main_v3 V0, val144_main_arg2 V0, val144_h V0]
  exact (hI_at (aX V0) (aA V0) (aB V0) 143 144 (by decide) rfl).symm
theorem val145_y (V0 : Valuation τ sig (Elt Ideal)) : val145 V0 (Proc.devRef .tc main_v2903) = yJ (aX V0) (aA V0) (aB V0) (aC V0) 145 := by
  refine ((step144_val (val144 V0)).2).trans ?_
  rw [val144_main_arg0 V0, val144_main_v3 V0, val144_main_arg2 V0, val144_main_arg3 V0, val144_h V0, val144_y V0]
  rw [← hI_at (aX V0) (aA V0) (aB V0) 143 144 (by decide) rfl]
  exact (yJ_at (aX V0) (aA V0) (aB V0) (aC V0) 144 145 (by decide) rfl).symm
/-- The contents after step 145. -/
def val146 (V0 : Valuation τ sig (Elt Ideal)) : Valuation τ sig (Elt Ideal) := after (stepOps145 (F := Ideal)) (val145 V0)
theorem val146_main_arg0 (V0 : Valuation τ sig (Elt Ideal)) : val146 V0 (Proc.devRef .tc main_arg0) = aX V0 :=
  (after_keep _ 10 stepOps145_ok main_arg0 (by decide +kernel) (val145 V0)).trans (val145_main_arg0 V0)
theorem val146_main_arg1 (V0 : Valuation τ sig (Elt Ideal)) : val146 V0 (Proc.devRef .tc main_arg1) = aA V0 :=
  (after_keep _ 10 stepOps145_ok main_arg1 (by decide +kernel) (val145 V0)).trans (val145_main_arg1 V0)
theorem val146_main_arg2 (V0 : Valuation τ sig (Elt Ideal)) : val146 V0 (Proc.devRef .tc main_arg2) = aB V0 :=
  (after_keep _ 10 stepOps145_ok main_arg2 (by decide +kernel) (val145 V0)).trans (val145_main_arg2 V0)
theorem val146_main_arg3 (V0 : Valuation τ sig (Elt Ideal)) : val146 V0 (Proc.devRef .tc main_arg3) = aC V0 :=
  (after_keep _ 10 stepOps145_ok main_arg3 (by decide +kernel) (val145 V0)).trans (val145_main_arg3 V0)
theorem val146_main_v3 (V0 : Valuation τ sig (Elt Ideal)) : val146 V0 (Proc.devRef .tc main_v3) = decay (aA V0) :=
  (after_keep _ 10 stepOps145_ok main_v3 (by decide +kernel) (val145 V0)).trans (val145_main_v3 V0)
theorem val146_h (V0 : Valuation τ sig (Elt Ideal)) : val146 V0 (Proc.devRef .tc main_v2915) = hI (aX V0) (aA V0) (aB V0) 145 := by
  refine ((step145_val (val145 V0)).1).trans ?_
  rw [val145_main_arg0 V0, val145_main_v3 V0, val145_main_arg2 V0, val145_h V0]
  exact (hI_at (aX V0) (aA V0) (aB V0) 144 145 (by decide) rfl).symm
theorem val146_y (V0 : Valuation τ sig (Elt Ideal)) : val146 V0 (Proc.devRef .tc main_v2923) = yJ (aX V0) (aA V0) (aB V0) (aC V0) 146 := by
  refine ((step145_val (val145 V0)).2).trans ?_
  rw [val145_main_arg0 V0, val145_main_v3 V0, val145_main_arg2 V0, val145_main_arg3 V0, val145_h V0, val145_y V0]
  rw [← hI_at (aX V0) (aA V0) (aB V0) 144 145 (by decide) rfl]
  exact (yJ_at (aX V0) (aA V0) (aB V0) (aC V0) 145 146 (by decide) rfl).symm
/-- The contents after step 146. -/
def val147 (V0 : Valuation τ sig (Elt Ideal)) : Valuation τ sig (Elt Ideal) := after (stepOps146 (F := Ideal)) (val146 V0)
theorem val147_main_arg0 (V0 : Valuation τ sig (Elt Ideal)) : val147 V0 (Proc.devRef .tc main_arg0) = aX V0 :=
  (after_keep _ 10 stepOps146_ok main_arg0 (by decide +kernel) (val146 V0)).trans (val146_main_arg0 V0)
theorem val147_main_arg1 (V0 : Valuation τ sig (Elt Ideal)) : val147 V0 (Proc.devRef .tc main_arg1) = aA V0 :=
  (after_keep _ 10 stepOps146_ok main_arg1 (by decide +kernel) (val146 V0)).trans (val146_main_arg1 V0)
theorem val147_main_arg2 (V0 : Valuation τ sig (Elt Ideal)) : val147 V0 (Proc.devRef .tc main_arg2) = aB V0 :=
  (after_keep _ 10 stepOps146_ok main_arg2 (by decide +kernel) (val146 V0)).trans (val146_main_arg2 V0)
theorem val147_main_arg3 (V0 : Valuation τ sig (Elt Ideal)) : val147 V0 (Proc.devRef .tc main_arg3) = aC V0 :=
  (after_keep _ 10 stepOps146_ok main_arg3 (by decide +kernel) (val146 V0)).trans (val146_main_arg3 V0)
theorem val147_main_v3 (V0 : Valuation τ sig (Elt Ideal)) : val147 V0 (Proc.devRef .tc main_v3) = decay (aA V0) :=
  (after_keep _ 10 stepOps146_ok main_v3 (by decide +kernel) (val146 V0)).trans (val146_main_v3 V0)
theorem val147_h (V0 : Valuation τ sig (Elt Ideal)) : val147 V0 (Proc.devRef .tc main_v2935) = hI (aX V0) (aA V0) (aB V0) 146 := by
  refine ((step146_val (val146 V0)).1).trans ?_
  rw [val146_main_arg0 V0, val146_main_v3 V0, val146_main_arg2 V0, val146_h V0]
  exact (hI_at (aX V0) (aA V0) (aB V0) 145 146 (by decide) rfl).symm
theorem val147_y (V0 : Valuation τ sig (Elt Ideal)) : val147 V0 (Proc.devRef .tc main_v2943) = yJ (aX V0) (aA V0) (aB V0) (aC V0) 147 := by
  refine ((step146_val (val146 V0)).2).trans ?_
  rw [val146_main_arg0 V0, val146_main_v3 V0, val146_main_arg2 V0, val146_main_arg3 V0, val146_h V0, val146_y V0]
  rw [← hI_at (aX V0) (aA V0) (aB V0) 145 146 (by decide) rfl]
  exact (yJ_at (aX V0) (aA V0) (aB V0) (aC V0) 146 147 (by decide) rfl).symm
/-- The contents after step 147. -/
def val148 (V0 : Valuation τ sig (Elt Ideal)) : Valuation τ sig (Elt Ideal) := after (stepOps147 (F := Ideal)) (val147 V0)
theorem val148_main_arg0 (V0 : Valuation τ sig (Elt Ideal)) : val148 V0 (Proc.devRef .tc main_arg0) = aX V0 :=
  (after_keep _ 10 stepOps147_ok main_arg0 (by decide +kernel) (val147 V0)).trans (val147_main_arg0 V0)
theorem val148_main_arg1 (V0 : Valuation τ sig (Elt Ideal)) : val148 V0 (Proc.devRef .tc main_arg1) = aA V0 :=
  (after_keep _ 10 stepOps147_ok main_arg1 (by decide +kernel) (val147 V0)).trans (val147_main_arg1 V0)
theorem val148_main_arg2 (V0 : Valuation τ sig (Elt Ideal)) : val148 V0 (Proc.devRef .tc main_arg2) = aB V0 :=
  (after_keep _ 10 stepOps147_ok main_arg2 (by decide +kernel) (val147 V0)).trans (val147_main_arg2 V0)
theorem val148_main_arg3 (V0 : Valuation τ sig (Elt Ideal)) : val148 V0 (Proc.devRef .tc main_arg3) = aC V0 :=
  (after_keep _ 10 stepOps147_ok main_arg3 (by decide +kernel) (val147 V0)).trans (val147_main_arg3 V0)
theorem val148_main_v3 (V0 : Valuation τ sig (Elt Ideal)) : val148 V0 (Proc.devRef .tc main_v3) = decay (aA V0) :=
  (after_keep _ 10 stepOps147_ok main_v3 (by decide +kernel) (val147 V0)).trans (val147_main_v3 V0)
theorem val148_h (V0 : Valuation τ sig (Elt Ideal)) : val148 V0 (Proc.devRef .tc main_v2955) = hI (aX V0) (aA V0) (aB V0) 147 := by
  refine ((step147_val (val147 V0)).1).trans ?_
  rw [val147_main_arg0 V0, val147_main_v3 V0, val147_main_arg2 V0, val147_h V0]
  exact (hI_at (aX V0) (aA V0) (aB V0) 146 147 (by decide) rfl).symm
theorem val148_y (V0 : Valuation τ sig (Elt Ideal)) : val148 V0 (Proc.devRef .tc main_v2963) = yJ (aX V0) (aA V0) (aB V0) (aC V0) 148 := by
  refine ((step147_val (val147 V0)).2).trans ?_
  rw [val147_main_arg0 V0, val147_main_v3 V0, val147_main_arg2 V0, val147_main_arg3 V0, val147_h V0, val147_y V0]
  rw [← hI_at (aX V0) (aA V0) (aB V0) 146 147 (by decide) rfl]
  exact (yJ_at (aX V0) (aA V0) (aB V0) (aC V0) 147 148 (by decide) rfl).symm
/-- The contents after step 148. -/
def val149 (V0 : Valuation τ sig (Elt Ideal)) : Valuation τ sig (Elt Ideal) := after (stepOps148 (F := Ideal)) (val148 V0)
theorem val149_main_arg0 (V0 : Valuation τ sig (Elt Ideal)) : val149 V0 (Proc.devRef .tc main_arg0) = aX V0 :=
  (after_keep _ 10 stepOps148_ok main_arg0 (by decide +kernel) (val148 V0)).trans (val148_main_arg0 V0)
theorem val149_main_arg1 (V0 : Valuation τ sig (Elt Ideal)) : val149 V0 (Proc.devRef .tc main_arg1) = aA V0 :=
  (after_keep _ 10 stepOps148_ok main_arg1 (by decide +kernel) (val148 V0)).trans (val148_main_arg1 V0)
theorem val149_main_arg2 (V0 : Valuation τ sig (Elt Ideal)) : val149 V0 (Proc.devRef .tc main_arg2) = aB V0 :=
  (after_keep _ 10 stepOps148_ok main_arg2 (by decide +kernel) (val148 V0)).trans (val148_main_arg2 V0)
theorem val149_main_arg3 (V0 : Valuation τ sig (Elt Ideal)) : val149 V0 (Proc.devRef .tc main_arg3) = aC V0 :=
  (after_keep _ 10 stepOps148_ok main_arg3 (by decide +kernel) (val148 V0)).trans (val148_main_arg3 V0)
theorem val149_main_v3 (V0 : Valuation τ sig (Elt Ideal)) : val149 V0 (Proc.devRef .tc main_v3) = decay (aA V0) :=
  (after_keep _ 10 stepOps148_ok main_v3 (by decide +kernel) (val148 V0)).trans (val148_main_v3 V0)
theorem val149_h (V0 : Valuation τ sig (Elt Ideal)) : val149 V0 (Proc.devRef .tc main_v2975) = hI (aX V0) (aA V0) (aB V0) 148 := by
  refine ((step148_val (val148 V0)).1).trans ?_
  rw [val148_main_arg0 V0, val148_main_v3 V0, val148_main_arg2 V0, val148_h V0]
  exact (hI_at (aX V0) (aA V0) (aB V0) 147 148 (by decide) rfl).symm
theorem val149_y (V0 : Valuation τ sig (Elt Ideal)) : val149 V0 (Proc.devRef .tc main_v2983) = yJ (aX V0) (aA V0) (aB V0) (aC V0) 149 := by
  refine ((step148_val (val148 V0)).2).trans ?_
  rw [val148_main_arg0 V0, val148_main_v3 V0, val148_main_arg2 V0, val148_main_arg3 V0, val148_h V0, val148_y V0]
  rw [← hI_at (aX V0) (aA V0) (aB V0) 147 148 (by decide) rfl]
  exact (yJ_at (aX V0) (aA V0) (aB V0) (aC V0) 148 149 (by decide) rfl).symm
/-- The contents after step 149. -/
def val150 (V0 : Valuation τ sig (Elt Ideal)) : Valuation τ sig (Elt Ideal) := after (stepOps149 (F := Ideal)) (val149 V0)
theorem val150_main_arg0 (V0 : Valuation τ sig (Elt Ideal)) : val150 V0 (Proc.devRef .tc main_arg0) = aX V0 :=
  (after_keep _ 10 stepOps149_ok main_arg0 (by decide +kernel) (val149 V0)).trans (val149_main_arg0 V0)
theorem val150_main_arg1 (V0 : Valuation τ sig (Elt Ideal)) : val150 V0 (Proc.devRef .tc main_arg1) = aA V0 :=
  (after_keep _ 10 stepOps149_ok main_arg1 (by decide +kernel) (val149 V0)).trans (val149_main_arg1 V0)
theorem val150_main_arg2 (V0 : Valuation τ sig (Elt Ideal)) : val150 V0 (Proc.devRef .tc main_arg2) = aB V0 :=
  (after_keep _ 10 stepOps149_ok main_arg2 (by decide +kernel) (val149 V0)).trans (val149_main_arg2 V0)
theorem val150_main_arg3 (V0 : Valuation τ sig (Elt Ideal)) : val150 V0 (Proc.devRef .tc main_arg3) = aC V0 :=
  (after_keep _ 10 stepOps149_ok main_arg3 (by decide +kernel) (val149 V0)).trans (val149_main_arg3 V0)
theorem val150_main_v3 (V0 : Valuation τ sig (Elt Ideal)) : val150 V0 (Proc.devRef .tc main_v3) = decay (aA V0) :=
  (after_keep _ 10 stepOps149_ok main_v3 (by decide +kernel) (val149 V0)).trans (val149_main_v3 V0)
theorem val150_h (V0 : Valuation τ sig (Elt Ideal)) : val150 V0 (Proc.devRef .tc main_v2995) = hI (aX V0) (aA V0) (aB V0) 149 := by
  refine ((step149_val (val149 V0)).1).trans ?_
  rw [val149_main_arg0 V0, val149_main_v3 V0, val149_main_arg2 V0, val149_h V0]
  exact (hI_at (aX V0) (aA V0) (aB V0) 148 149 (by decide) rfl).symm
theorem val150_y (V0 : Valuation τ sig (Elt Ideal)) : val150 V0 (Proc.devRef .tc main_v3003) = yJ (aX V0) (aA V0) (aB V0) (aC V0) 150 := by
  refine ((step149_val (val149 V0)).2).trans ?_
  rw [val149_main_arg0 V0, val149_main_v3 V0, val149_main_arg2 V0, val149_main_arg3 V0, val149_h V0, val149_y V0]
  rw [← hI_at (aX V0) (aA V0) (aB V0) 148 149 (by decide) rfl]
  exact (yJ_at (aX V0) (aA V0) (aB V0) (aC V0) 149 150 (by decide) rfl).symm
/-- The contents after step 150. -/
def val151 (V0 : Valuation τ sig (Elt Ideal)) : Valuation τ sig (Elt Ideal) := after (stepOps150 (F := Ideal)) (val150 V0)
theorem val151_main_arg0 (V0 : Valuation τ sig (Elt Ideal)) : val151 V0 (Proc.devRef .tc main_arg0) = aX V0 :=
  (after_keep _ 10 stepOps150_ok main_arg0 (by decide +kernel) (val150 V0)).trans (val150_main_arg0 V0)
theorem val151_main_arg1 (V0 : Valuation τ sig (Elt Ideal)) : val151 V0 (Proc.devRef .tc main_arg1) = aA V0 :=
  (after_keep _ 10 stepOps150_ok main_arg1 (by decide +kernel) (val150 V0)).trans (val150_main_arg1 V0)
theorem val151_main_arg2 (V0 : Valuation τ sig (Elt Ideal)) : val151 V0 (Proc.devRef .tc main_arg2) = aB V0 :=
  (after_keep _ 10 stepOps150_ok main_arg2 (by decide +kernel) (val150 V0)).trans (val150_main_arg2 V0)
theorem val151_main_arg3 (V0 : Valuation τ sig (Elt Ideal)) : val151 V0 (Proc.devRef .tc main_arg3) = aC V0 :=
  (after_keep _ 10 stepOps150_ok main_arg3 (by decide +kernel) (val150 V0)).trans (val150_main_arg3 V0)
theorem val151_main_v3 (V0 : Valuation τ sig (Elt Ideal)) : val151 V0 (Proc.devRef .tc main_v3) = decay (aA V0) :=
  (after_keep _ 10 stepOps150_ok main_v3 (by decide +kernel) (val150 V0)).trans (val150_main_v3 V0)
theorem val151_h (V0 : Valuation τ sig (Elt Ideal)) : val151 V0 (Proc.devRef .tc main_v3015) = hI (aX V0) (aA V0) (aB V0) 150 := by
  refine ((step150_val (val150 V0)).1).trans ?_
  rw [val150_main_arg0 V0, val150_main_v3 V0, val150_main_arg2 V0, val150_h V0]
  exact (hI_at (aX V0) (aA V0) (aB V0) 149 150 (by decide) rfl).symm
theorem val151_y (V0 : Valuation τ sig (Elt Ideal)) : val151 V0 (Proc.devRef .tc main_v3023) = yJ (aX V0) (aA V0) (aB V0) (aC V0) 151 := by
  refine ((step150_val (val150 V0)).2).trans ?_
  rw [val150_main_arg0 V0, val150_main_v3 V0, val150_main_arg2 V0, val150_main_arg3 V0, val150_h V0, val150_y V0]
  rw [← hI_at (aX V0) (aA V0) (aB V0) 149 150 (by decide) rfl]
  exact (yJ_at (aX V0) (aA V0) (aB V0) (aC V0) 150 151 (by decide) rfl).symm
/-- The contents after step 151. -/
def val152 (V0 : Valuation τ sig (Elt Ideal)) : Valuation τ sig (Elt Ideal) := after (stepOps151 (F := Ideal)) (val151 V0)
theorem val152_main_arg0 (V0 : Valuation τ sig (Elt Ideal)) : val152 V0 (Proc.devRef .tc main_arg0) = aX V0 :=
  (after_keep _ 10 stepOps151_ok main_arg0 (by decide +kernel) (val151 V0)).trans (val151_main_arg0 V0)
theorem val152_main_arg1 (V0 : Valuation τ sig (Elt Ideal)) : val152 V0 (Proc.devRef .tc main_arg1) = aA V0 :=
  (after_keep _ 10 stepOps151_ok main_arg1 (by decide +kernel) (val151 V0)).trans (val151_main_arg1 V0)
theorem val152_main_arg2 (V0 : Valuation τ sig (Elt Ideal)) : val152 V0 (Proc.devRef .tc main_arg2) = aB V0 :=
  (after_keep _ 10 stepOps151_ok main_arg2 (by decide +kernel) (val151 V0)).trans (val151_main_arg2 V0)
theorem val152_main_arg3 (V0 : Valuation τ sig (Elt Ideal)) : val152 V0 (Proc.devRef .tc main_arg3) = aC V0 :=
  (after_keep _ 10 stepOps151_ok main_arg3 (by decide +kernel) (val151 V0)).trans (val151_main_arg3 V0)
theorem val152_main_v3 (V0 : Valuation τ sig (Elt Ideal)) : val152 V0 (Proc.devRef .tc main_v3) = decay (aA V0) :=
  (after_keep _ 10 stepOps151_ok main_v3 (by decide +kernel) (val151 V0)).trans (val151_main_v3 V0)
theorem val152_h (V0 : Valuation τ sig (Elt Ideal)) : val152 V0 (Proc.devRef .tc main_v3035) = hI (aX V0) (aA V0) (aB V0) 151 := by
  refine ((step151_val (val151 V0)).1).trans ?_
  rw [val151_main_arg0 V0, val151_main_v3 V0, val151_main_arg2 V0, val151_h V0]
  exact (hI_at (aX V0) (aA V0) (aB V0) 150 151 (by decide) rfl).symm
theorem val152_y (V0 : Valuation τ sig (Elt Ideal)) : val152 V0 (Proc.devRef .tc main_v3043) = yJ (aX V0) (aA V0) (aB V0) (aC V0) 152 := by
  refine ((step151_val (val151 V0)).2).trans ?_
  rw [val151_main_arg0 V0, val151_main_v3 V0, val151_main_arg2 V0, val151_main_arg3 V0, val151_h V0, val151_y V0]
  rw [← hI_at (aX V0) (aA V0) (aB V0) 150 151 (by decide) rfl]
  exact (yJ_at (aX V0) (aA V0) (aB V0) (aC V0) 151 152 (by decide) rfl).symm
/-- The contents after step 152. -/
def val153 (V0 : Valuation τ sig (Elt Ideal)) : Valuation τ sig (Elt Ideal) := after (stepOps152 (F := Ideal)) (val152 V0)
theorem val153_main_arg0 (V0 : Valuation τ sig (Elt Ideal)) : val153 V0 (Proc.devRef .tc main_arg0) = aX V0 :=
  (after_keep _ 10 stepOps152_ok main_arg0 (by decide +kernel) (val152 V0)).trans (val152_main_arg0 V0)
theorem val153_main_arg1 (V0 : Valuation τ sig (Elt Ideal)) : val153 V0 (Proc.devRef .tc main_arg1) = aA V0 :=
  (after_keep _ 10 stepOps152_ok main_arg1 (by decide +kernel) (val152 V0)).trans (val152_main_arg1 V0)
theorem val153_main_arg2 (V0 : Valuation τ sig (Elt Ideal)) : val153 V0 (Proc.devRef .tc main_arg2) = aB V0 :=
  (after_keep _ 10 stepOps152_ok main_arg2 (by decide +kernel) (val152 V0)).trans (val152_main_arg2 V0)
theorem val153_main_arg3 (V0 : Valuation τ sig (Elt Ideal)) : val153 V0 (Proc.devRef .tc main_arg3) = aC V0 :=
  (after_keep _ 10 stepOps152_ok main_arg3 (by decide +kernel) (val152 V0)).trans (val152_main_arg3 V0)
theorem val153_main_v3 (V0 : Valuation τ sig (Elt Ideal)) : val153 V0 (Proc.devRef .tc main_v3) = decay (aA V0) :=
  (after_keep _ 10 stepOps152_ok main_v3 (by decide +kernel) (val152 V0)).trans (val152_main_v3 V0)
theorem val153_h (V0 : Valuation τ sig (Elt Ideal)) : val153 V0 (Proc.devRef .tc main_v3055) = hI (aX V0) (aA V0) (aB V0) 152 := by
  refine ((step152_val (val152 V0)).1).trans ?_
  rw [val152_main_arg0 V0, val152_main_v3 V0, val152_main_arg2 V0, val152_h V0]
  exact (hI_at (aX V0) (aA V0) (aB V0) 151 152 (by decide) rfl).symm
theorem val153_y (V0 : Valuation τ sig (Elt Ideal)) : val153 V0 (Proc.devRef .tc main_v3063) = yJ (aX V0) (aA V0) (aB V0) (aC V0) 153 := by
  refine ((step152_val (val152 V0)).2).trans ?_
  rw [val152_main_arg0 V0, val152_main_v3 V0, val152_main_arg2 V0, val152_main_arg3 V0, val152_h V0, val152_y V0]
  rw [← hI_at (aX V0) (aA V0) (aB V0) 151 152 (by decide) rfl]
  exact (yJ_at (aX V0) (aA V0) (aB V0) (aC V0) 152 153 (by decide) rfl).symm
/-- The contents after step 153. -/
def val154 (V0 : Valuation τ sig (Elt Ideal)) : Valuation τ sig (Elt Ideal) := after (stepOps153 (F := Ideal)) (val153 V0)
theorem val154_main_arg0 (V0 : Valuation τ sig (Elt Ideal)) : val154 V0 (Proc.devRef .tc main_arg0) = aX V0 :=
  (after_keep _ 10 stepOps153_ok main_arg0 (by decide +kernel) (val153 V0)).trans (val153_main_arg0 V0)
theorem val154_main_arg1 (V0 : Valuation τ sig (Elt Ideal)) : val154 V0 (Proc.devRef .tc main_arg1) = aA V0 :=
  (after_keep _ 10 stepOps153_ok main_arg1 (by decide +kernel) (val153 V0)).trans (val153_main_arg1 V0)
theorem val154_main_arg2 (V0 : Valuation τ sig (Elt Ideal)) : val154 V0 (Proc.devRef .tc main_arg2) = aB V0 :=
  (after_keep _ 10 stepOps153_ok main_arg2 (by decide +kernel) (val153 V0)).trans (val153_main_arg2 V0)
theorem val154_main_arg3 (V0 : Valuation τ sig (Elt Ideal)) : val154 V0 (Proc.devRef .tc main_arg3) = aC V0 :=
  (after_keep _ 10 stepOps153_ok main_arg3 (by decide +kernel) (val153 V0)).trans (val153_main_arg3 V0)
theorem val154_main_v3 (V0 : Valuation τ sig (Elt Ideal)) : val154 V0 (Proc.devRef .tc main_v3) = decay (aA V0) :=
  (after_keep _ 10 stepOps153_ok main_v3 (by decide +kernel) (val153 V0)).trans (val153_main_v3 V0)
theorem val154_h (V0 : Valuation τ sig (Elt Ideal)) : val154 V0 (Proc.devRef .tc main_v3075) = hI (aX V0) (aA V0) (aB V0) 153 := by
  refine ((step153_val (val153 V0)).1).trans ?_
  rw [val153_main_arg0 V0, val153_main_v3 V0, val153_main_arg2 V0, val153_h V0]
  exact (hI_at (aX V0) (aA V0) (aB V0) 152 153 (by decide) rfl).symm
theorem val154_y (V0 : Valuation τ sig (Elt Ideal)) : val154 V0 (Proc.devRef .tc main_v3083) = yJ (aX V0) (aA V0) (aB V0) (aC V0) 154 := by
  refine ((step153_val (val153 V0)).2).trans ?_
  rw [val153_main_arg0 V0, val153_main_v3 V0, val153_main_arg2 V0, val153_main_arg3 V0, val153_h V0, val153_y V0]
  rw [← hI_at (aX V0) (aA V0) (aB V0) 152 153 (by decide) rfl]
  exact (yJ_at (aX V0) (aA V0) (aB V0) (aC V0) 153 154 (by decide) rfl).symm
/-- The contents after step 154. -/
def val155 (V0 : Valuation τ sig (Elt Ideal)) : Valuation τ sig (Elt Ideal) := after (stepOps154 (F := Ideal)) (val154 V0)
theorem val155_main_arg0 (V0 : Valuation τ sig (Elt Ideal)) : val155 V0 (Proc.devRef .tc main_arg0) = aX V0 :=
  (after_keep _ 10 stepOps154_ok main_arg0 (by decide +kernel) (val154 V0)).trans (val154_main_arg0 V0)
theorem val155_main_arg1 (V0 : Valuation τ sig (Elt Ideal)) : val155 V0 (Proc.devRef .tc main_arg1) = aA V0 :=
  (after_keep _ 10 stepOps154_ok main_arg1 (by decide +kernel) (val154 V0)).trans (val154_main_arg1 V0)
theorem val155_main_arg2 (V0 : Valuation τ sig (Elt Ideal)) : val155 V0 (Proc.devRef .tc main_arg2) = aB V0 :=
  (after_keep _ 10 stepOps154_ok main_arg2 (by decide +kernel) (val154 V0)).trans (val154_main_arg2 V0)
theorem val155_main_arg3 (V0 : Valuation τ sig (Elt Ideal)) : val155 V0 (Proc.devRef .tc main_arg3) = aC V0 :=
  (after_keep _ 10 stepOps154_ok main_arg3 (by decide +kernel) (val154 V0)).trans (val154_main_arg3 V0)
theorem val155_main_v3 (V0 : Valuation τ sig (Elt Ideal)) : val155 V0 (Proc.devRef .tc main_v3) = decay (aA V0) :=
  (after_keep _ 10 stepOps154_ok main_v3 (by decide +kernel) (val154 V0)).trans (val154_main_v3 V0)
theorem val155_h (V0 : Valuation τ sig (Elt Ideal)) : val155 V0 (Proc.devRef .tc main_v3095) = hI (aX V0) (aA V0) (aB V0) 154 := by
  refine ((step154_val (val154 V0)).1).trans ?_
  rw [val154_main_arg0 V0, val154_main_v3 V0, val154_main_arg2 V0, val154_h V0]
  exact (hI_at (aX V0) (aA V0) (aB V0) 153 154 (by decide) rfl).symm
theorem val155_y (V0 : Valuation τ sig (Elt Ideal)) : val155 V0 (Proc.devRef .tc main_v3103) = yJ (aX V0) (aA V0) (aB V0) (aC V0) 155 := by
  refine ((step154_val (val154 V0)).2).trans ?_
  rw [val154_main_arg0 V0, val154_main_v3 V0, val154_main_arg2 V0, val154_main_arg3 V0, val154_h V0, val154_y V0]
  rw [← hI_at (aX V0) (aA V0) (aB V0) 153 154 (by decide) rfl]
  exact (yJ_at (aX V0) (aA V0) (aB V0) (aC V0) 154 155 (by decide) rfl).symm
/-- The contents after step 155. -/
def val156 (V0 : Valuation τ sig (Elt Ideal)) : Valuation τ sig (Elt Ideal) := after (stepOps155 (F := Ideal)) (val155 V0)
theorem val156_main_arg0 (V0 : Valuation τ sig (Elt Ideal)) : val156 V0 (Proc.devRef .tc main_arg0) = aX V0 :=
  (after_keep _ 10 stepOps155_ok main_arg0 (by decide +kernel) (val155 V0)).trans (val155_main_arg0 V0)
theorem val156_main_arg1 (V0 : Valuation τ sig (Elt Ideal)) : val156 V0 (Proc.devRef .tc main_arg1) = aA V0 :=
  (after_keep _ 10 stepOps155_ok main_arg1 (by decide +kernel) (val155 V0)).trans (val155_main_arg1 V0)
theorem val156_main_arg2 (V0 : Valuation τ sig (Elt Ideal)) : val156 V0 (Proc.devRef .tc main_arg2) = aB V0 :=
  (after_keep _ 10 stepOps155_ok main_arg2 (by decide +kernel) (val155 V0)).trans (val155_main_arg2 V0)
theorem val156_main_arg3 (V0 : Valuation τ sig (Elt Ideal)) : val156 V0 (Proc.devRef .tc main_arg3) = aC V0 :=
  (after_keep _ 10 stepOps155_ok main_arg3 (by decide +kernel) (val155 V0)).trans (val155_main_arg3 V0)
theorem val156_main_v3 (V0 : Valuation τ sig (Elt Ideal)) : val156 V0 (Proc.devRef .tc main_v3) = decay (aA V0) :=
  (after_keep _ 10 stepOps155_ok main_v3 (by decide +kernel) (val155 V0)).trans (val155_main_v3 V0)
theorem val156_h (V0 : Valuation τ sig (Elt Ideal)) : val156 V0 (Proc.devRef .tc main_v3115) = hI (aX V0) (aA V0) (aB V0) 155 := by
  refine ((step155_val (val155 V0)).1).trans ?_
  rw [val155_main_arg0 V0, val155_main_v3 V0, val155_main_arg2 V0, val155_h V0]
  exact (hI_at (aX V0) (aA V0) (aB V0) 154 155 (by decide) rfl).symm
theorem val156_y (V0 : Valuation τ sig (Elt Ideal)) : val156 V0 (Proc.devRef .tc main_v3123) = yJ (aX V0) (aA V0) (aB V0) (aC V0) 156 := by
  refine ((step155_val (val155 V0)).2).trans ?_
  rw [val155_main_arg0 V0, val155_main_v3 V0, val155_main_arg2 V0, val155_main_arg3 V0, val155_h V0, val155_y V0]
  rw [← hI_at (aX V0) (aA V0) (aB V0) 154 155 (by decide) rfl]
  exact (yJ_at (aX V0) (aA V0) (aB V0) (aC V0) 155 156 (by decide) rfl).symm
/-- The contents after step 156. -/
def val157 (V0 : Valuation τ sig (Elt Ideal)) : Valuation τ sig (Elt Ideal) := after (stepOps156 (F := Ideal)) (val156 V0)
theorem val157_main_arg0 (V0 : Valuation τ sig (Elt Ideal)) : val157 V0 (Proc.devRef .tc main_arg0) = aX V0 :=
  (after_keep _ 10 stepOps156_ok main_arg0 (by decide +kernel) (val156 V0)).trans (val156_main_arg0 V0)
theorem val157_main_arg1 (V0 : Valuation τ sig (Elt Ideal)) : val157 V0 (Proc.devRef .tc main_arg1) = aA V0 :=
  (after_keep _ 10 stepOps156_ok main_arg1 (by decide +kernel) (val156 V0)).trans (val156_main_arg1 V0)
theorem val157_main_arg2 (V0 : Valuation τ sig (Elt Ideal)) : val157 V0 (Proc.devRef .tc main_arg2) = aB V0 :=
  (after_keep _ 10 stepOps156_ok main_arg2 (by decide +kernel) (val156 V0)).trans (val156_main_arg2 V0)
theorem val157_main_arg3 (V0 : Valuation τ sig (Elt Ideal)) : val157 V0 (Proc.devRef .tc main_arg3) = aC V0 :=
  (after_keep _ 10 stepOps156_ok main_arg3 (by decide +kernel) (val156 V0)).trans (val156_main_arg3 V0)
theorem val157_main_v3 (V0 : Valuation τ sig (Elt Ideal)) : val157 V0 (Proc.devRef .tc main_v3) = decay (aA V0) :=
  (after_keep _ 10 stepOps156_ok main_v3 (by decide +kernel) (val156 V0)).trans (val156_main_v3 V0)
theorem val157_h (V0 : Valuation τ sig (Elt Ideal)) : val157 V0 (Proc.devRef .tc main_v3135) = hI (aX V0) (aA V0) (aB V0) 156 := by
  refine ((step156_val (val156 V0)).1).trans ?_
  rw [val156_main_arg0 V0, val156_main_v3 V0, val156_main_arg2 V0, val156_h V0]
  exact (hI_at (aX V0) (aA V0) (aB V0) 155 156 (by decide) rfl).symm
theorem val157_y (V0 : Valuation τ sig (Elt Ideal)) : val157 V0 (Proc.devRef .tc main_v3143) = yJ (aX V0) (aA V0) (aB V0) (aC V0) 157 := by
  refine ((step156_val (val156 V0)).2).trans ?_
  rw [val156_main_arg0 V0, val156_main_v3 V0, val156_main_arg2 V0, val156_main_arg3 V0, val156_h V0, val156_y V0]
  rw [← hI_at (aX V0) (aA V0) (aB V0) 155 156 (by decide) rfl]
  exact (yJ_at (aX V0) (aA V0) (aB V0) (aC V0) 156 157 (by decide) rfl).symm
/-- The contents after step 157. -/
def val158 (V0 : Valuation τ sig (Elt Ideal)) : Valuation τ sig (Elt Ideal) := after (stepOps157 (F := Ideal)) (val157 V0)
theorem val158_main_arg0 (V0 : Valuation τ sig (Elt Ideal)) : val158 V0 (Proc.devRef .tc main_arg0) = aX V0 :=
  (after_keep _ 10 stepOps157_ok main_arg0 (by decide +kernel) (val157 V0)).trans (val157_main_arg0 V0)
theorem val158_main_arg1 (V0 : Valuation τ sig (Elt Ideal)) : val158 V0 (Proc.devRef .tc main_arg1) = aA V0 :=
  (after_keep _ 10 stepOps157_ok main_arg1 (by decide +kernel) (val157 V0)).trans (val157_main_arg1 V0)
theorem val158_main_arg2 (V0 : Valuation τ sig (Elt Ideal)) : val158 V0 (Proc.devRef .tc main_arg2) = aB V0 :=
  (after_keep _ 10 stepOps157_ok main_arg2 (by decide +kernel) (val157 V0)).trans (val157_main_arg2 V0)
theorem val158_main_arg3 (V0 : Valuation τ sig (Elt Ideal)) : val158 V0 (Proc.devRef .tc main_arg3) = aC V0 :=
  (after_keep _ 10 stepOps157_ok main_arg3 (by decide +kernel) (val157 V0)).trans (val157_main_arg3 V0)
theorem val158_main_v3 (V0 : Valuation τ sig (Elt Ideal)) : val158 V0 (Proc.devRef .tc main_v3) = decay (aA V0) :=
  (after_keep _ 10 stepOps157_ok main_v3 (by decide +kernel) (val157 V0)).trans (val157_main_v3 V0)
theorem val158_h (V0 : Valuation τ sig (Elt Ideal)) : val158 V0 (Proc.devRef .tc main_v3155) = hI (aX V0) (aA V0) (aB V0) 157 := by
  refine ((step157_val (val157 V0)).1).trans ?_
  rw [val157_main_arg0 V0, val157_main_v3 V0, val157_main_arg2 V0, val157_h V0]
  exact (hI_at (aX V0) (aA V0) (aB V0) 156 157 (by decide) rfl).symm
theorem val158_y (V0 : Valuation τ sig (Elt Ideal)) : val158 V0 (Proc.devRef .tc main_v3163) = yJ (aX V0) (aA V0) (aB V0) (aC V0) 158 := by
  refine ((step157_val (val157 V0)).2).trans ?_
  rw [val157_main_arg0 V0, val157_main_v3 V0, val157_main_arg2 V0, val157_main_arg3 V0, val157_h V0, val157_y V0]
  rw [← hI_at (aX V0) (aA V0) (aB V0) 156 157 (by decide) rfl]
  exact (yJ_at (aX V0) (aA V0) (aB V0) (aC V0) 157 158 (by decide) rfl).symm
/-- The contents after step 158. -/
def val159 (V0 : Valuation τ sig (Elt Ideal)) : Valuation τ sig (Elt Ideal) := after (stepOps158 (F := Ideal)) (val158 V0)
theorem val159_main_arg0 (V0 : Valuation τ sig (Elt Ideal)) : val159 V0 (Proc.devRef .tc main_arg0) = aX V0 :=
  (after_keep _ 10 stepOps158_ok main_arg0 (by decide +kernel) (val158 V0)).trans (val158_main_arg0 V0)
theorem val159_main_arg1 (V0 : Valuation τ sig (Elt Ideal)) : val159 V0 (Proc.devRef .tc main_arg1) = aA V0 :=
  (after_keep _ 10 stepOps158_ok main_arg1 (by decide +kernel) (val158 V0)).trans (val158_main_arg1 V0)
theorem val159_main_arg2 (V0 : Valuation τ sig (Elt Ideal)) : val159 V0 (Proc.devRef .tc main_arg2) = aB V0 :=
  (after_keep _ 10 stepOps158_ok main_arg2 (by decide +kernel) (val158 V0)).trans (val158_main_arg2 V0)
theorem val159_main_arg3 (V0 : Valuation τ sig (Elt Ideal)) : val159 V0 (Proc.devRef .tc main_arg3) = aC V0 :=
  (after_keep _ 10 stepOps158_ok main_arg3 (by decide +kernel) (val158 V0)).trans (val158_main_arg3 V0)
theorem val159_main_v3 (V0 : Valuation τ sig (Elt Ideal)) : val159 V0 (Proc.devRef .tc main_v3) = decay (aA V0) :=
  (after_keep _ 10 stepOps158_ok main_v3 (by decide +kernel) (val158 V0)).trans (val158_main_v3 V0)
theorem val159_h (V0 : Valuation τ sig (Elt Ideal)) : val159 V0 (Proc.devRef .tc main_v3175) = hI (aX V0) (aA V0) (aB V0) 158 := by
  refine ((step158_val (val158 V0)).1).trans ?_
  rw [val158_main_arg0 V0, val158_main_v3 V0, val158_main_arg2 V0, val158_h V0]
  exact (hI_at (aX V0) (aA V0) (aB V0) 157 158 (by decide) rfl).symm
theorem val159_y (V0 : Valuation τ sig (Elt Ideal)) : val159 V0 (Proc.devRef .tc main_v3183) = yJ (aX V0) (aA V0) (aB V0) (aC V0) 159 := by
  refine ((step158_val (val158 V0)).2).trans ?_
  rw [val158_main_arg0 V0, val158_main_v3 V0, val158_main_arg2 V0, val158_main_arg3 V0, val158_h V0, val158_y V0]
  rw [← hI_at (aX V0) (aA V0) (aB V0) 157 158 (by decide) rfl]
  exact (yJ_at (aX V0) (aA V0) (aB V0) (aC V0) 158 159 (by decide) rfl).symm
/-- The contents after step 159. -/
def val160 (V0 : Valuation τ sig (Elt Ideal)) : Valuation τ sig (Elt Ideal) := after (stepOps159 (F := Ideal)) (val159 V0)
theorem val160_main_arg0 (V0 : Valuation τ sig (Elt Ideal)) : val160 V0 (Proc.devRef .tc main_arg0) = aX V0 :=
  (after_keep _ 10 stepOps159_ok main_arg0 (by decide +kernel) (val159 V0)).trans (val159_main_arg0 V0)
theorem val160_main_arg1 (V0 : Valuation τ sig (Elt Ideal)) : val160 V0 (Proc.devRef .tc main_arg1) = aA V0 :=
  (after_keep _ 10 stepOps159_ok main_arg1 (by decide +kernel) (val159 V0)).trans (val159_main_arg1 V0)
theorem val160_main_arg2 (V0 : Valuation τ sig (Elt Ideal)) : val160 V0 (Proc.devRef .tc main_arg2) = aB V0 :=
  (after_keep _ 10 stepOps159_ok main_arg2 (by decide +kernel) (val159 V0)).trans (val159_main_arg2 V0)
theorem val160_main_arg3 (V0 : Valuation τ sig (Elt Ideal)) : val160 V0 (Proc.devRef .tc main_arg3) = aC V0 :=
  (after_keep _ 10 stepOps159_ok main_arg3 (by decide +kernel) (val159 V0)).trans (val159_main_arg3 V0)
theorem val160_main_v3 (V0 : Valuation τ sig (Elt Ideal)) : val160 V0 (Proc.devRef .tc main_v3) = decay (aA V0) :=
  (after_keep _ 10 stepOps159_ok main_v3 (by decide +kernel) (val159 V0)).trans (val159_main_v3 V0)
theorem val160_h (V0 : Valuation τ sig (Elt Ideal)) : val160 V0 (Proc.devRef .tc main_v3195) = hI (aX V0) (aA V0) (aB V0) 159 := by
  refine ((step159_val (val159 V0)).1).trans ?_
  rw [val159_main_arg0 V0, val159_main_v3 V0, val159_main_arg2 V0, val159_h V0]
  exact (hI_at (aX V0) (aA V0) (aB V0) 158 159 (by decide) rfl).symm
theorem val160_y (V0 : Valuation τ sig (Elt Ideal)) : val160 V0 (Proc.devRef .tc main_v3203) = yJ (aX V0) (aA V0) (aB V0) (aC V0) 160 := by
  refine ((step159_val (val159 V0)).2).trans ?_
  rw [val159_main_arg0 V0, val159_main_v3 V0, val159_main_arg2 V0, val159_main_arg3 V0, val159_h V0, val159_y V0]
  rw [← hI_at (aX V0) (aA V0) (aB V0) 158 159 (by decide) rfl]
  exact (yJ_at (aX V0) (aA V0) (aB V0) (aC V0) 159 160 (by decide) rfl).symm
/-- The contents after step 160. -/
def val161 (V0 : Valuation τ sig (Elt Ideal)) : Valuation τ sig (Elt Ideal) := after (stepOps160 (F := Ideal)) (val160 V0)
theorem val161_main_arg0 (V0 : Valuation τ sig (Elt Ideal)) : val161 V0 (Proc.devRef .tc main_arg0) = aX V0 :=
  (after_keep _ 10 stepOps160_ok main_arg0 (by decide +kernel) (val160 V0)).trans (val160_main_arg0 V0)
theorem val161_main_arg1 (V0 : Valuation τ sig (Elt Ideal)) : val161 V0 (Proc.devRef .tc main_arg1) = aA V0 :=
  (after_keep _ 10 stepOps160_ok main_arg1 (by decide +kernel) (val160 V0)).trans (val160_main_arg1 V0)
theorem val161_main_arg2 (V0 : Valuation τ sig (Elt Ideal)) : val161 V0 (Proc.devRef .tc main_arg2) = aB V0 :=
  (after_keep _ 10 stepOps160_ok main_arg2 (by decide +kernel) (val160 V0)).trans (val160_main_arg2 V0)
theorem val161_main_arg3 (V0 : Valuation τ sig (Elt Ideal)) : val161 V0 (Proc.devRef .tc main_arg3) = aC V0 :=
  (after_keep _ 10 stepOps160_ok main_arg3 (by decide +kernel) (val160 V0)).trans (val160_main_arg3 V0)
theorem val161_main_v3 (V0 : Valuation τ sig (Elt Ideal)) : val161 V0 (Proc.devRef .tc main_v3) = decay (aA V0) :=
  (after_keep _ 10 stepOps160_ok main_v3 (by decide +kernel) (val160 V0)).trans (val160_main_v3 V0)
theorem val161_h (V0 : Valuation τ sig (Elt Ideal)) : val161 V0 (Proc.devRef .tc main_v3215) = hI (aX V0) (aA V0) (aB V0) 160 := by
  refine ((step160_val (val160 V0)).1).trans ?_
  rw [val160_main_arg0 V0, val160_main_v3 V0, val160_main_arg2 V0, val160_h V0]
  exact (hI_at (aX V0) (aA V0) (aB V0) 159 160 (by decide) rfl).symm
theorem val161_y (V0 : Valuation τ sig (Elt Ideal)) : val161 V0 (Proc.devRef .tc main_v3223) = yJ (aX V0) (aA V0) (aB V0) (aC V0) 161 := by
  refine ((step160_val (val160 V0)).2).trans ?_
  rw [val160_main_arg0 V0, val160_main_v3 V0, val160_main_arg2 V0, val160_main_arg3 V0, val160_h V0, val160_y V0]
  rw [← hI_at (aX V0) (aA V0) (aB V0) 159 160 (by decide) rfl]
  exact (yJ_at (aX V0) (aA V0) (aB V0) (aC V0) 160 161 (by decide) rfl).symm
/-- The contents after step 161. -/
def val162 (V0 : Valuation τ sig (Elt Ideal)) : Valuation τ sig (Elt Ideal) := after (stepOps161 (F := Ideal)) (val161 V0)
theorem val162_main_arg0 (V0 : Valuation τ sig (Elt Ideal)) : val162 V0 (Proc.devRef .tc main_arg0) = aX V0 :=
  (after_keep _ 10 stepOps161_ok main_arg0 (by decide +kernel) (val161 V0)).trans (val161_main_arg0 V0)
theorem val162_main_arg1 (V0 : Valuation τ sig (Elt Ideal)) : val162 V0 (Proc.devRef .tc main_arg1) = aA V0 :=
  (after_keep _ 10 stepOps161_ok main_arg1 (by decide +kernel) (val161 V0)).trans (val161_main_arg1 V0)
theorem val162_main_arg2 (V0 : Valuation τ sig (Elt Ideal)) : val162 V0 (Proc.devRef .tc main_arg2) = aB V0 :=
  (after_keep _ 10 stepOps161_ok main_arg2 (by decide +kernel) (val161 V0)).trans (val161_main_arg2 V0)
theorem val162_main_arg3 (V0 : Valuation τ sig (Elt Ideal)) : val162 V0 (Proc.devRef .tc main_arg3) = aC V0 :=
  (after_keep _ 10 stepOps161_ok main_arg3 (by decide +kernel) (val161 V0)).trans (val161_main_arg3 V0)
theorem val162_main_v3 (V0 : Valuation τ sig (Elt Ideal)) : val162 V0 (Proc.devRef .tc main_v3) = decay (aA V0) :=
  (after_keep _ 10 stepOps161_ok main_v3 (by decide +kernel) (val161 V0)).trans (val161_main_v3 V0)
theorem val162_h (V0 : Valuation τ sig (Elt Ideal)) : val162 V0 (Proc.devRef .tc main_v3235) = hI (aX V0) (aA V0) (aB V0) 161 := by
  refine ((step161_val (val161 V0)).1).trans ?_
  rw [val161_main_arg0 V0, val161_main_v3 V0, val161_main_arg2 V0, val161_h V0]
  exact (hI_at (aX V0) (aA V0) (aB V0) 160 161 (by decide) rfl).symm
theorem val162_y (V0 : Valuation τ sig (Elt Ideal)) : val162 V0 (Proc.devRef .tc main_v3243) = yJ (aX V0) (aA V0) (aB V0) (aC V0) 162 := by
  refine ((step161_val (val161 V0)).2).trans ?_
  rw [val161_main_arg0 V0, val161_main_v3 V0, val161_main_arg2 V0, val161_main_arg3 V0, val161_h V0, val161_y V0]
  rw [← hI_at (aX V0) (aA V0) (aB V0) 160 161 (by decide) rfl]
  exact (yJ_at (aX V0) (aA V0) (aB V0) (aC V0) 161 162 (by decide) rfl).symm
/-- The contents after step 162. -/
def val163 (V0 : Valuation τ sig (Elt Ideal)) : Valuation τ sig (Elt Ideal) := after (stepOps162 (F := Ideal)) (val162 V0)
theorem val163_main_arg0 (V0 : Valuation τ sig (Elt Ideal)) : val163 V0 (Proc.devRef .tc main_arg0) = aX V0 :=
  (after_keep _ 10 stepOps162_ok main_arg0 (by decide +kernel) (val162 V0)).trans (val162_main_arg0 V0)
theorem val163_main_arg1 (V0 : Valuation τ sig (Elt Ideal)) : val163 V0 (Proc.devRef .tc main_arg1) = aA V0 :=
  (after_keep _ 10 stepOps162_ok main_arg1 (by decide +kernel) (val162 V0)).trans (val162_main_arg1 V0)
theorem val163_main_arg2 (V0 : Valuation τ sig (Elt Ideal)) : val163 V0 (Proc.devRef .tc main_arg2) = aB V0 :=
  (after_keep _ 10 stepOps162_ok main_arg2 (by decide +kernel) (val162 V0)).trans (val162_main_arg2 V0)
theorem val163_main_arg3 (V0 : Valuation τ sig (Elt Ideal)) : val163 V0 (Proc.devRef .tc main_arg3) = aC V0 :=
  (after_keep _ 10 stepOps162_ok main_arg3 (by decide +kernel) (val162 V0)).trans (val162_main_arg3 V0)
theorem val163_main_v3 (V0 : Valuation τ sig (Elt Ideal)) : val163 V0 (Proc.devRef .tc main_v3) = decay (aA V0) :=
  (after_keep _ 10 stepOps162_ok main_v3 (by decide +kernel) (val162 V0)).trans (val162_main_v3 V0)
theorem val163_h (V0 : Valuation τ sig (Elt Ideal)) : val163 V0 (Proc.devRef .tc main_v3255) = hI (aX V0) (aA V0) (aB V0) 162 := by
  refine ((step162_val (val162 V0)).1).trans ?_
  rw [val162_main_arg0 V0, val162_main_v3 V0, val162_main_arg2 V0, val162_h V0]
  exact (hI_at (aX V0) (aA V0) (aB V0) 161 162 (by decide) rfl).symm
theorem val163_y (V0 : Valuation τ sig (Elt Ideal)) : val163 V0 (Proc.devRef .tc main_v3263) = yJ (aX V0) (aA V0) (aB V0) (aC V0) 163 := by
  refine ((step162_val (val162 V0)).2).trans ?_
  rw [val162_main_arg0 V0, val162_main_v3 V0, val162_main_arg2 V0, val162_main_arg3 V0, val162_h V0, val162_y V0]
  rw [← hI_at (aX V0) (aA V0) (aB V0) 161 162 (by decide) rfl]
  exact (yJ_at (aX V0) (aA V0) (aB V0) (aC V0) 162 163 (by decide) rfl).symm
/-- The contents after step 163. -/
def val164 (V0 : Valuation τ sig (Elt Ideal)) : Valuation τ sig (Elt Ideal) := after (stepOps163 (F := Ideal)) (val163 V0)
theorem val164_main_arg0 (V0 : Valuation τ sig (Elt Ideal)) : val164 V0 (Proc.devRef .tc main_arg0) = aX V0 :=
  (after_keep _ 10 stepOps163_ok main_arg0 (by decide +kernel) (val163 V0)).trans (val163_main_arg0 V0)
theorem val164_main_arg1 (V0 : Valuation τ sig (Elt Ideal)) : val164 V0 (Proc.devRef .tc main_arg1) = aA V0 :=
  (after_keep _ 10 stepOps163_ok main_arg1 (by decide +kernel) (val163 V0)).trans (val163_main_arg1 V0)
theorem val164_main_arg2 (V0 : Valuation τ sig (Elt Ideal)) : val164 V0 (Proc.devRef .tc main_arg2) = aB V0 :=
  (after_keep _ 10 stepOps163_ok main_arg2 (by decide +kernel) (val163 V0)).trans (val163_main_arg2 V0)
theorem val164_main_arg3 (V0 : Valuation τ sig (Elt Ideal)) : val164 V0 (Proc.devRef .tc main_arg3) = aC V0 :=
  (after_keep _ 10 stepOps163_ok main_arg3 (by decide +kernel) (val163 V0)).trans (val163_main_arg3 V0)
theorem val164_main_v3 (V0 : Valuation τ sig (Elt Ideal)) : val164 V0 (Proc.devRef .tc main_v3) = decay (aA V0) :=
  (after_keep _ 10 stepOps163_ok main_v3 (by decide +kernel) (val163 V0)).trans (val163_main_v3 V0)
theorem val164_h (V0 : Valuation τ sig (Elt Ideal)) : val164 V0 (Proc.devRef .tc main_v3275) = hI (aX V0) (aA V0) (aB V0) 163 := by
  refine ((step163_val (val163 V0)).1).trans ?_
  rw [val163_main_arg0 V0, val163_main_v3 V0, val163_main_arg2 V0, val163_h V0]
  exact (hI_at (aX V0) (aA V0) (aB V0) 162 163 (by decide) rfl).symm
theorem val164_y (V0 : Valuation τ sig (Elt Ideal)) : val164 V0 (Proc.devRef .tc main_v3283) = yJ (aX V0) (aA V0) (aB V0) (aC V0) 164 := by
  refine ((step163_val (val163 V0)).2).trans ?_
  rw [val163_main_arg0 V0, val163_main_v3 V0, val163_main_arg2 V0, val163_main_arg3 V0, val163_h V0, val163_y V0]
  rw [← hI_at (aX V0) (aA V0) (aB V0) 162 163 (by decide) rfl]
  exact (yJ_at (aX V0) (aA V0) (aB V0) (aC V0) 163 164 (by decide) rfl).symm
/-- The contents after step 164. -/
def val165 (V0 : Valuation τ sig (Elt Ideal)) : Valuation τ sig (Elt Ideal) := after (stepOps164 (F := Ideal)) (val164 V0)
theorem val165_main_arg0 (V0 : Valuation τ sig (Elt Ideal)) : val165 V0 (Proc.devRef .tc main_arg0) = aX V0 :=
  (after_keep _ 10 stepOps164_ok main_arg0 (by decide +kernel) (val164 V0)).trans (val164_main_arg0 V0)
theorem val165_main_arg1 (V0 : Valuation τ sig (Elt Ideal)) : val165 V0 (Proc.devRef .tc main_arg1) = aA V0 :=
  (after_keep _ 10 stepOps164_ok main_arg1 (by decide +kernel) (val164 V0)).trans (val164_main_arg1 V0)
theorem val165_main_arg2 (V0 : Valuation τ sig (Elt Ideal)) : val165 V0 (Proc.devRef .tc main_arg2) = aB V0 :=
  (after_keep _ 10 stepOps164_ok main_arg2 (by decide +kernel) (val164 V0)).trans (val164_main_arg2 V0)
theorem val165_main_arg3 (V0 : Valuation τ sig (Elt Ideal)) : val165 V0 (Proc.devRef .tc main_arg3) = aC V0 :=
  (after_keep _ 10 stepOps164_ok main_arg3 (by decide +kernel) (val164 V0)).trans (val164_main_arg3 V0)
theorem val165_main_v3 (V0 : Valuation τ sig (Elt Ideal)) : val165 V0 (Proc.devRef .tc main_v3) = decay (aA V0) :=
  (after_keep _ 10 stepOps164_ok main_v3 (by decide +kernel) (val164 V0)).trans (val164_main_v3 V0)
theorem val165_h (V0 : Valuation τ sig (Elt Ideal)) : val165 V0 (Proc.devRef .tc main_v3295) = hI (aX V0) (aA V0) (aB V0) 164 := by
  refine ((step164_val (val164 V0)).1).trans ?_
  rw [val164_main_arg0 V0, val164_main_v3 V0, val164_main_arg2 V0, val164_h V0]
  exact (hI_at (aX V0) (aA V0) (aB V0) 163 164 (by decide) rfl).symm
theorem val165_y (V0 : Valuation τ sig (Elt Ideal)) : val165 V0 (Proc.devRef .tc main_v3303) = yJ (aX V0) (aA V0) (aB V0) (aC V0) 165 := by
  refine ((step164_val (val164 V0)).2).trans ?_
  rw [val164_main_arg0 V0, val164_main_v3 V0, val164_main_arg2 V0, val164_main_arg3 V0, val164_h V0, val164_y V0]
  rw [← hI_at (aX V0) (aA V0) (aB V0) 163 164 (by decide) rfl]
  exact (yJ_at (aX V0) (aA V0) (aB V0) (aC V0) 164 165 (by decide) rfl).symm
/-- The contents after step 165. -/
def val166 (V0 : Valuation τ sig (Elt Ideal)) : Valuation τ sig (Elt Ideal) := after (stepOps165 (F := Ideal)) (val165 V0)
theorem val166_main_arg0 (V0 : Valuation τ sig (Elt Ideal)) : val166 V0 (Proc.devRef .tc main_arg0) = aX V0 :=
  (after_keep _ 10 stepOps165_ok main_arg0 (by decide +kernel) (val165 V0)).trans (val165_main_arg0 V0)
theorem val166_main_arg1 (V0 : Valuation τ sig (Elt Ideal)) : val166 V0 (Proc.devRef .tc main_arg1) = aA V0 :=
  (after_keep _ 10 stepOps165_ok main_arg1 (by decide +kernel) (val165 V0)).trans (val165_main_arg1 V0)
theorem val166_main_arg2 (V0 : Valuation τ sig (Elt Ideal)) : val166 V0 (Proc.devRef .tc main_arg2) = aB V0 :=
  (after_keep _ 10 stepOps165_ok main_arg2 (by decide +kernel) (val165 V0)).trans (val165_main_arg2 V0)
theorem val166_main_arg3 (V0 : Valuation τ sig (Elt Ideal)) : val166 V0 (Proc.devRef .tc main_arg3) = aC V0 :=
  (after_keep _ 10 stepOps165_ok main_arg3 (by decide +kernel) (val165 V0)).trans (val165_main_arg3 V0)
theorem val166_main_v3 (V0 : Valuation τ sig (Elt Ideal)) : val166 V0 (Proc.devRef .tc main_v3) = decay (aA V0) :=
  (after_keep _ 10 stepOps165_ok main_v3 (by decide +kernel) (val165 V0)).trans (val165_main_v3 V0)
theorem val166_h (V0 : Valuation τ sig (Elt Ideal)) : val166 V0 (Proc.devRef .tc main_v3315) = hI (aX V0) (aA V0) (aB V0) 165 := by
  refine ((step165_val (val165 V0)).1).trans ?_
  rw [val165_main_arg0 V0, val165_main_v3 V0, val165_main_arg2 V0, val165_h V0]
  exact (hI_at (aX V0) (aA V0) (aB V0) 164 165 (by decide) rfl).symm
theorem val166_y (V0 : Valuation τ sig (Elt Ideal)) : val166 V0 (Proc.devRef .tc main_v3323) = yJ (aX V0) (aA V0) (aB V0) (aC V0) 166 := by
  refine ((step165_val (val165 V0)).2).trans ?_
  rw [val165_main_arg0 V0, val165_main_v3 V0, val165_main_arg2 V0, val165_main_arg3 V0, val165_h V0, val165_y V0]
  rw [← hI_at (aX V0) (aA V0) (aB V0) 164 165 (by decide) rfl]
  exact (yJ_at (aX V0) (aA V0) (aB V0) (aC V0) 165 166 (by decide) rfl).symm
/-- The contents after step 166. -/
def val167 (V0 : Valuation τ sig (Elt Ideal)) : Valuation τ sig (Elt Ideal) := after (stepOps166 (F := Ideal)) (val166 V0)
theorem val167_main_arg0 (V0 : Valuation τ sig (Elt Ideal)) : val167 V0 (Proc.devRef .tc main_arg0) = aX V0 :=
  (after_keep _ 10 stepOps166_ok main_arg0 (by decide +kernel) (val166 V0)).trans (val166_main_arg0 V0)
theorem val167_main_arg1 (V0 : Valuation τ sig (Elt Ideal)) : val167 V0 (Proc.devRef .tc main_arg1) = aA V0 :=
  (after_keep _ 10 stepOps166_ok main_arg1 (by decide +kernel) (val166 V0)).trans (val166_main_arg1 V0)
theorem val167_main_arg2 (V0 : Valuation τ sig (Elt Ideal)) : val167 V0 (Proc.devRef .tc main_arg2) = aB V0 :=
  (after_keep _ 10 stepOps166_ok main_arg2 (by decide +kernel) (val166 V0)).trans (val166_main_arg2 V0)
theorem val167_main_arg3 (V0 : Valuation τ sig (Elt Ideal)) : val167 V0 (Proc.devRef .tc main_arg3) = aC V0 :=
  (after_keep _ 10 stepOps166_ok main_arg3 (by decide +kernel) (val166 V0)).trans (val166_main_arg3 V0)
theorem val167_main_v3 (V0 : Valuation τ sig (Elt Ideal)) : val167 V0 (Proc.devRef .tc main_v3) = decay (aA V0) :=
  (after_keep _ 10 stepOps166_ok main_v3 (by decide +kernel) (val166 V0)).trans (val166_main_v3 V0)
theorem val167_h (V0 : Valuation τ sig (Elt Ideal)) : val167 V0 (Proc.devRef .tc main_v3335) = hI (aX V0) (aA V0) (aB V0) 166 := by
  refine ((step166_val (val166 V0)).1).trans ?_
  rw [val166_main_arg0 V0, val166_main_v3 V0, val166_main_arg2 V0, val166_h V0]
  exact (hI_at (aX V0) (aA V0) (aB V0) 165 166 (by decide) rfl).symm
theorem val167_y (V0 : Valuation τ sig (Elt Ideal)) : val167 V0 (Proc.devRef .tc main_v3343) = yJ (aX V0) (aA V0) (aB V0) (aC V0) 167 := by
  refine ((step166_val (val166 V0)).2).trans ?_
  rw [val166_main_arg0 V0, val166_main_v3 V0, val166_main_arg2 V0, val166_main_arg3 V0, val166_h V0, val166_y V0]
  rw [← hI_at (aX V0) (aA V0) (aB V0) 165 166 (by decide) rfl]
  exact (yJ_at (aX V0) (aA V0) (aB V0) (aC V0) 166 167 (by decide) rfl).symm
/-- The contents after step 167. -/
def val168 (V0 : Valuation τ sig (Elt Ideal)) : Valuation τ sig (Elt Ideal) := after (stepOps167 (F := Ideal)) (val167 V0)
theorem val168_main_arg0 (V0 : Valuation τ sig (Elt Ideal)) : val168 V0 (Proc.devRef .tc main_arg0) = aX V0 :=
  (after_keep _ 10 stepOps167_ok main_arg0 (by decide +kernel) (val167 V0)).trans (val167_main_arg0 V0)
theorem val168_main_arg1 (V0 : Valuation τ sig (Elt Ideal)) : val168 V0 (Proc.devRef .tc main_arg1) = aA V0 :=
  (after_keep _ 10 stepOps167_ok main_arg1 (by decide +kernel) (val167 V0)).trans (val167_main_arg1 V0)
theorem val168_main_arg2 (V0 : Valuation τ sig (Elt Ideal)) : val168 V0 (Proc.devRef .tc main_arg2) = aB V0 :=
  (after_keep _ 10 stepOps167_ok main_arg2 (by decide +kernel) (val167 V0)).trans (val167_main_arg2 V0)
theorem val168_main_arg3 (V0 : Valuation τ sig (Elt Ideal)) : val168 V0 (Proc.devRef .tc main_arg3) = aC V0 :=
  (after_keep _ 10 stepOps167_ok main_arg3 (by decide +kernel) (val167 V0)).trans (val167_main_arg3 V0)
theorem val168_main_v3 (V0 : Valuation τ sig (Elt Ideal)) : val168 V0 (Proc.devRef .tc main_v3) = decay (aA V0) :=
  (after_keep _ 10 stepOps167_ok main_v3 (by decide +kernel) (val167 V0)).trans (val167_main_v3 V0)
theorem val168_h (V0 : Valuation τ sig (Elt Ideal)) : val168 V0 (Proc.devRef .tc main_v3355) = hI (aX V0) (aA V0) (aB V0) 167 := by
  refine ((step167_val (val167 V0)).1).trans ?_
  rw [val167_main_arg0 V0, val167_main_v3 V0, val167_main_arg2 V0, val167_h V0]
  exact (hI_at (aX V0) (aA V0) (aB V0) 166 167 (by decide) rfl).symm
theorem val168_y (V0 : Valuation τ sig (Elt Ideal)) : val168 V0 (Proc.devRef .tc main_v3363) = yJ (aX V0) (aA V0) (aB V0) (aC V0) 168 := by
  refine ((step167_val (val167 V0)).2).trans ?_
  rw [val167_main_arg0 V0, val167_main_v3 V0, val167_main_arg2 V0, val167_main_arg3 V0, val167_h V0, val167_y V0]
  rw [← hI_at (aX V0) (aA V0) (aB V0) 166 167 (by decide) rfl]
  exact (yJ_at (aX V0) (aA V0) (aB V0) (aC V0) 167 168 (by decide) rfl).symm
/-- The contents after step 168. -/
def val169 (V0 : Valuation τ sig (Elt Ideal)) : Valuation τ sig (Elt Ideal) := after (stepOps168 (F := Ideal)) (val168 V0)
theorem val169_main_arg0 (V0 : Valuation τ sig (Elt Ideal)) : val169 V0 (Proc.devRef .tc main_arg0) = aX V0 :=
  (after_keep _ 10 stepOps168_ok main_arg0 (by decide +kernel) (val168 V0)).trans (val168_main_arg0 V0)
theorem val169_main_arg1 (V0 : Valuation τ sig (Elt Ideal)) : val169 V0 (Proc.devRef .tc main_arg1) = aA V0 :=
  (after_keep _ 10 stepOps168_ok main_arg1 (by decide +kernel) (val168 V0)).trans (val168_main_arg1 V0)
theorem val169_main_arg2 (V0 : Valuation τ sig (Elt Ideal)) : val169 V0 (Proc.devRef .tc main_arg2) = aB V0 :=
  (after_keep _ 10 stepOps168_ok main_arg2 (by decide +kernel) (val168 V0)).trans (val168_main_arg2 V0)
theorem val169_main_arg3 (V0 : Valuation τ sig (Elt Ideal)) : val169 V0 (Proc.devRef .tc main_arg3) = aC V0 :=
  (after_keep _ 10 stepOps168_ok main_arg3 (by decide +kernel) (val168 V0)).trans (val168_main_arg3 V0)
theorem val169_main_v3 (V0 : Valuation τ sig (Elt Ideal)) : val169 V0 (Proc.devRef .tc main_v3) = decay (aA V0) :=
  (after_keep _ 10 stepOps168_ok main_v3 (by decide +kernel) (val168 V0)).trans (val168_main_v3 V0)
theorem val169_h (V0 : Valuation τ sig (Elt Ideal)) : val169 V0 (Proc.devRef .tc main_v3375) = hI (aX V0) (aA V0) (aB V0) 168 := by
  refine ((step168_val (val168 V0)).1).trans ?_
  rw [val168_main_arg0 V0, val168_main_v3 V0, val168_main_arg2 V0, val168_h V0]
  exact (hI_at (aX V0) (aA V0) (aB V0) 167 168 (by decide) rfl).symm
theorem val169_y (V0 : Valuation τ sig (Elt Ideal)) : val169 V0 (Proc.devRef .tc main_v3383) = yJ (aX V0) (aA V0) (aB V0) (aC V0) 169 := by
  refine ((step168_val (val168 V0)).2).trans ?_
  rw [val168_main_arg0 V0, val168_main_v3 V0, val168_main_arg2 V0, val168_main_arg3 V0, val168_h V0, val168_y V0]
  rw [← hI_at (aX V0) (aA V0) (aB V0) 167 168 (by decide) rfl]
  exact (yJ_at (aX V0) (aA V0) (aB V0) (aC V0) 168 169 (by decide) rfl).symm
/-- The contents after step 169. -/
def val170 (V0 : Valuation τ sig (Elt Ideal)) : Valuation τ sig (Elt Ideal) := after (stepOps169 (F := Ideal)) (val169 V0)
theorem val170_main_arg0 (V0 : Valuation τ sig (Elt Ideal)) : val170 V0 (Proc.devRef .tc main_arg0) = aX V0 :=
  (after_keep _ 10 stepOps169_ok main_arg0 (by decide +kernel) (val169 V0)).trans (val169_main_arg0 V0)
theorem val170_main_arg1 (V0 : Valuation τ sig (Elt Ideal)) : val170 V0 (Proc.devRef .tc main_arg1) = aA V0 :=
  (after_keep _ 10 stepOps169_ok main_arg1 (by decide +kernel) (val169 V0)).trans (val169_main_arg1 V0)
theorem val170_main_arg2 (V0 : Valuation τ sig (Elt Ideal)) : val170 V0 (Proc.devRef .tc main_arg2) = aB V0 :=
  (after_keep _ 10 stepOps169_ok main_arg2 (by decide +kernel) (val169 V0)).trans (val169_main_arg2 V0)
theorem val170_main_arg3 (V0 : Valuation τ sig (Elt Ideal)) : val170 V0 (Proc.devRef .tc main_arg3) = aC V0 :=
  (after_keep _ 10 stepOps169_ok main_arg3 (by decide +kernel) (val169 V0)).trans (val169_main_arg3 V0)
theorem val170_main_v3 (V0 : Valuation τ sig (Elt Ideal)) : val170 V0 (Proc.devRef .tc main_v3) = decay (aA V0) :=
  (after_keep _ 10 stepOps169_ok main_v3 (by decide +kernel) (val169 V0)).trans (val169_main_v3 V0)
theorem val170_h (V0 : Valuation τ sig (Elt Ideal)) : val170 V0 (Proc.devRef .tc main_v3395) = hI (aX V0) (aA V0) (aB V0) 169 := by
  refine ((step169_val (val169 V0)).1).trans ?_
  rw [val169_main_arg0 V0, val169_main_v3 V0, val169_main_arg2 V0, val169_h V0]
  exact (hI_at (aX V0) (aA V0) (aB V0) 168 169 (by decide) rfl).symm
theorem val170_y (V0 : Valuation τ sig (Elt Ideal)) : val170 V0 (Proc.devRef .tc main_v3403) = yJ (aX V0) (aA V0) (aB V0) (aC V0) 170 := by
  refine ((step169_val (val169 V0)).2).trans ?_
  rw [val169_main_arg0 V0, val169_main_v3 V0, val169_main_arg2 V0, val169_main_arg3 V0, val169_h V0, val169_y V0]
  rw [← hI_at (aX V0) (aA V0) (aB V0) 168 169 (by decide) rfl]
  exact (yJ_at (aX V0) (aA V0) (aB V0) (aC V0) 169 170 (by decide) rfl).symm
/-- The contents after step 170. -/
def val171 (V0 : Valuation τ sig (Elt Ideal)) : Valuation τ sig (Elt Ideal) := after (stepOps170 (F := Ideal)) (val170 V0)
theorem val171_main_arg0 (V0 : Valuation τ sig (Elt Ideal)) : val171 V0 (Proc.devRef .tc main_arg0) = aX V0 :=
  (after_keep _ 10 stepOps170_ok main_arg0 (by decide +kernel) (val170 V0)).trans (val170_main_arg0 V0)
theorem val171_main_arg1 (V0 : Valuation τ sig (Elt Ideal)) : val171 V0 (Proc.devRef .tc main_arg1) = aA V0 :=
  (after_keep _ 10 stepOps170_ok main_arg1 (by decide +kernel) (val170 V0)).trans (val170_main_arg1 V0)
theorem val171_main_arg2 (V0 : Valuation τ sig (Elt Ideal)) : val171 V0 (Proc.devRef .tc main_arg2) = aB V0 :=
  (after_keep _ 10 stepOps170_ok main_arg2 (by decide +kernel) (val170 V0)).trans (val170_main_arg2 V0)
theorem val171_main_arg3 (V0 : Valuation τ sig (Elt Ideal)) : val171 V0 (Proc.devRef .tc main_arg3) = aC V0 :=
  (after_keep _ 10 stepOps170_ok main_arg3 (by decide +kernel) (val170 V0)).trans (val170_main_arg3 V0)
theorem val171_main_v3 (V0 : Valuation τ sig (Elt Ideal)) : val171 V0 (Proc.devRef .tc main_v3) = decay (aA V0) :=
  (after_keep _ 10 stepOps170_ok main_v3 (by decide +kernel) (val170 V0)).trans (val170_main_v3 V0)
theorem val171_h (V0 : Valuation τ sig (Elt Ideal)) : val171 V0 (Proc.devRef .tc main_v3415) = hI (aX V0) (aA V0) (aB V0) 170 := by
  refine ((step170_val (val170 V0)).1).trans ?_
  rw [val170_main_arg0 V0, val170_main_v3 V0, val170_main_arg2 V0, val170_h V0]
  exact (hI_at (aX V0) (aA V0) (aB V0) 169 170 (by decide) rfl).symm
theorem val171_y (V0 : Valuation τ sig (Elt Ideal)) : val171 V0 (Proc.devRef .tc main_v3423) = yJ (aX V0) (aA V0) (aB V0) (aC V0) 171 := by
  refine ((step170_val (val170 V0)).2).trans ?_
  rw [val170_main_arg0 V0, val170_main_v3 V0, val170_main_arg2 V0, val170_main_arg3 V0, val170_h V0, val170_y V0]
  rw [← hI_at (aX V0) (aA V0) (aB V0) 169 170 (by decide) rfl]
  exact (yJ_at (aX V0) (aA V0) (aB V0) (aC V0) 170 171 (by decide) rfl).symm
/-- The contents after step 171. -/
def val172 (V0 : Valuation τ sig (Elt Ideal)) : Valuation τ sig (Elt Ideal) := after (stepOps171 (F := Ideal)) (val171 V0)
theorem val172_main_arg0 (V0 : Valuation τ sig (Elt Ideal)) : val172 V0 (Proc.devRef .tc main_arg0) = aX V0 :=
  (after_keep _ 10 stepOps171_ok main_arg0 (by decide +kernel) (val171 V0)).trans (val171_main_arg0 V0)
theorem val172_main_arg1 (V0 : Valuation τ sig (Elt Ideal)) : val172 V0 (Proc.devRef .tc main_arg1) = aA V0 :=
  (after_keep _ 10 stepOps171_ok main_arg1 (by decide +kernel) (val171 V0)).trans (val171_main_arg1 V0)
theorem val172_main_arg2 (V0 : Valuation τ sig (Elt Ideal)) : val172 V0 (Proc.devRef .tc main_arg2) = aB V0 :=
  (after_keep _ 10 stepOps171_ok main_arg2 (by decide +kernel) (val171 V0)).trans (val171_main_arg2 V0)
theorem val172_main_arg3 (V0 : Valuation τ sig (Elt Ideal)) : val172 V0 (Proc.devRef .tc main_arg3) = aC V0 :=
  (after_keep _ 10 stepOps171_ok main_arg3 (by decide +kernel) (val171 V0)).trans (val171_main_arg3 V0)
theorem val172_main_v3 (V0 : Valuation τ sig (Elt Ideal)) : val172 V0 (Proc.devRef .tc main_v3) = decay (aA V0) :=
  (after_keep _ 10 stepOps171_ok main_v3 (by decide +kernel) (val171 V0)).trans (val171_main_v3 V0)
theorem val172_h (V0 : Valuation τ sig (Elt Ideal)) : val172 V0 (Proc.devRef .tc main_v3435) = hI (aX V0) (aA V0) (aB V0) 171 := by
  refine ((step171_val (val171 V0)).1).trans ?_
  rw [val171_main_arg0 V0, val171_main_v3 V0, val171_main_arg2 V0, val171_h V0]
  exact (hI_at (aX V0) (aA V0) (aB V0) 170 171 (by decide) rfl).symm
theorem val172_y (V0 : Valuation τ sig (Elt Ideal)) : val172 V0 (Proc.devRef .tc main_v3443) = yJ (aX V0) (aA V0) (aB V0) (aC V0) 172 := by
  refine ((step171_val (val171 V0)).2).trans ?_
  rw [val171_main_arg0 V0, val171_main_v3 V0, val171_main_arg2 V0, val171_main_arg3 V0, val171_h V0, val171_y V0]
  rw [← hI_at (aX V0) (aA V0) (aB V0) 170 171 (by decide) rfl]
  exact (yJ_at (aX V0) (aA V0) (aB V0) (aC V0) 171 172 (by decide) rfl).symm
/-- The contents after step 172. -/
def val173 (V0 : Valuation τ sig (Elt Ideal)) : Valuation τ sig (Elt Ideal) := after (stepOps172 (F := Ideal)) (val172 V0)
theorem val173_main_arg0 (V0 : Valuation τ sig (Elt Ideal)) : val173 V0 (Proc.devRef .tc main_arg0) = aX V0 :=
  (after_keep _ 10 stepOps172_ok main_arg0 (by decide +kernel) (val172 V0)).trans (val172_main_arg0 V0)
theorem val173_main_arg1 (V0 : Valuation τ sig (Elt Ideal)) : val173 V0 (Proc.devRef .tc main_arg1) = aA V0 :=
  (after_keep _ 10 stepOps172_ok main_arg1 (by decide +kernel) (val172 V0)).trans (val172_main_arg1 V0)
theorem val173_main_arg2 (V0 : Valuation τ sig (Elt Ideal)) : val173 V0 (Proc.devRef .tc main_arg2) = aB V0 :=
  (after_keep _ 10 stepOps172_ok main_arg2 (by decide +kernel) (val172 V0)).trans (val172_main_arg2 V0)
theorem val173_main_arg3 (V0 : Valuation τ sig (Elt Ideal)) : val173 V0 (Proc.devRef .tc main_arg3) = aC V0 :=
  (after_keep _ 10 stepOps172_ok main_arg3 (by decide +kernel) (val172 V0)).trans (val172_main_arg3 V0)
theorem val173_main_v3 (V0 : Valuation τ sig (Elt Ideal)) : val173 V0 (Proc.devRef .tc main_v3) = decay (aA V0) :=
  (after_keep _ 10 stepOps172_ok main_v3 (by decide +kernel) (val172 V0)).trans (val172_main_v3 V0)
theorem val173_h (V0 : Valuation τ sig (Elt Ideal)) : val173 V0 (Proc.devRef .tc main_v3455) = hI (aX V0) (aA V0) (aB V0) 172 := by
  refine ((step172_val (val172 V0)).1).trans ?_
  rw [val172_main_arg0 V0, val172_main_v3 V0, val172_main_arg2 V0, val172_h V0]
  exact (hI_at (aX V0) (aA V0) (aB V0) 171 172 (by decide) rfl).symm
theorem val173_y (V0 : Valuation τ sig (Elt Ideal)) : val173 V0 (Proc.devRef .tc main_v3463) = yJ (aX V0) (aA V0) (aB V0) (aC V0) 173 := by
  refine ((step172_val (val172 V0)).2).trans ?_
  rw [val172_main_arg0 V0, val172_main_v3 V0, val172_main_arg2 V0, val172_main_arg3 V0, val172_h V0, val172_y V0]
  rw [← hI_at (aX V0) (aA V0) (aB V0) 171 172 (by decide) rfl]
  exact (yJ_at (aX V0) (aA V0) (aB V0) (aC V0) 172 173 (by decide) rfl).symm
/-- The contents after step 173. -/
def val174 (V0 : Valuation τ sig (Elt Ideal)) : Valuation τ sig (Elt Ideal) := after (stepOps173 (F := Ideal)) (val173 V0)
theorem val174_main_arg0 (V0 : Valuation τ sig (Elt Ideal)) : val174 V0 (Proc.devRef .tc main_arg0) = aX V0 :=
  (after_keep _ 10 stepOps173_ok main_arg0 (by decide +kernel) (val173 V0)).trans (val173_main_arg0 V0)
theorem val174_main_arg1 (V0 : Valuation τ sig (Elt Ideal)) : val174 V0 (Proc.devRef .tc main_arg1) = aA V0 :=
  (after_keep _ 10 stepOps173_ok main_arg1 (by decide +kernel) (val173 V0)).trans (val173_main_arg1 V0)
theorem val174_main_arg2 (V0 : Valuation τ sig (Elt Ideal)) : val174 V0 (Proc.devRef .tc main_arg2) = aB V0 :=
  (after_keep _ 10 stepOps173_ok main_arg2 (by decide +kernel) (val173 V0)).trans (val173_main_arg2 V0)
theorem val174_main_arg3 (V0 : Valuation τ sig (Elt Ideal)) : val174 V0 (Proc.devRef .tc main_arg3) = aC V0 :=
  (after_keep _ 10 stepOps173_ok main_arg3 (by decide +kernel) (val173 V0)).trans (val173_main_arg3 V0)
theorem val174_main_v3 (V0 : Valuation τ sig (Elt Ideal)) : val174 V0 (Proc.devRef .tc main_v3) = decay (aA V0) :=
  (after_keep _ 10 stepOps173_ok main_v3 (by decide +kernel) (val173 V0)).trans (val173_main_v3 V0)
theorem val174_h (V0 : Valuation τ sig (Elt Ideal)) : val174 V0 (Proc.devRef .tc main_v3475) = hI (aX V0) (aA V0) (aB V0) 173 := by
  refine ((step173_val (val173 V0)).1).trans ?_
  rw [val173_main_arg0 V0, val173_main_v3 V0, val173_main_arg2 V0, val173_h V0]
  exact (hI_at (aX V0) (aA V0) (aB V0) 172 173 (by decide) rfl).symm
theorem val174_y (V0 : Valuation τ sig (Elt Ideal)) : val174 V0 (Proc.devRef .tc main_v3483) = yJ (aX V0) (aA V0) (aB V0) (aC V0) 174 := by
  refine ((step173_val (val173 V0)).2).trans ?_
  rw [val173_main_arg0 V0, val173_main_v3 V0, val173_main_arg2 V0, val173_main_arg3 V0, val173_h V0, val173_y V0]
  rw [← hI_at (aX V0) (aA V0) (aB V0) 172 173 (by decide) rfl]
  exact (yJ_at (aX V0) (aA V0) (aB V0) (aC V0) 173 174 (by decide) rfl).symm
/-- The contents after step 174. -/
def val175 (V0 : Valuation τ sig (Elt Ideal)) : Valuation τ sig (Elt Ideal) := after (stepOps174 (F := Ideal)) (val174 V0)
theorem val175_main_arg0 (V0 : Valuation τ sig (Elt Ideal)) : val175 V0 (Proc.devRef .tc main_arg0) = aX V0 :=
  (after_keep _ 10 stepOps174_ok main_arg0 (by decide +kernel) (val174 V0)).trans (val174_main_arg0 V0)
theorem val175_main_arg1 (V0 : Valuation τ sig (Elt Ideal)) : val175 V0 (Proc.devRef .tc main_arg1) = aA V0 :=
  (after_keep _ 10 stepOps174_ok main_arg1 (by decide +kernel) (val174 V0)).trans (val174_main_arg1 V0)
theorem val175_main_arg2 (V0 : Valuation τ sig (Elt Ideal)) : val175 V0 (Proc.devRef .tc main_arg2) = aB V0 :=
  (after_keep _ 10 stepOps174_ok main_arg2 (by decide +kernel) (val174 V0)).trans (val174_main_arg2 V0)
theorem val175_main_arg3 (V0 : Valuation τ sig (Elt Ideal)) : val175 V0 (Proc.devRef .tc main_arg3) = aC V0 :=
  (after_keep _ 10 stepOps174_ok main_arg3 (by decide +kernel) (val174 V0)).trans (val174_main_arg3 V0)
theorem val175_main_v3 (V0 : Valuation τ sig (Elt Ideal)) : val175 V0 (Proc.devRef .tc main_v3) = decay (aA V0) :=
  (after_keep _ 10 stepOps174_ok main_v3 (by decide +kernel) (val174 V0)).trans (val174_main_v3 V0)
theorem val175_h (V0 : Valuation τ sig (Elt Ideal)) : val175 V0 (Proc.devRef .tc main_v3495) = hI (aX V0) (aA V0) (aB V0) 174 := by
  refine ((step174_val (val174 V0)).1).trans ?_
  rw [val174_main_arg0 V0, val174_main_v3 V0, val174_main_arg2 V0, val174_h V0]
  exact (hI_at (aX V0) (aA V0) (aB V0) 173 174 (by decide) rfl).symm
theorem val175_y (V0 : Valuation τ sig (Elt Ideal)) : val175 V0 (Proc.devRef .tc main_v3503) = yJ (aX V0) (aA V0) (aB V0) (aC V0) 175 := by
  refine ((step174_val (val174 V0)).2).trans ?_
  rw [val174_main_arg0 V0, val174_main_v3 V0, val174_main_arg2 V0, val174_main_arg3 V0, val174_h V0, val174_y V0]
  rw [← hI_at (aX V0) (aA V0) (aB V0) 173 174 (by decide) rfl]
  exact (yJ_at (aX V0) (aA V0) (aB V0) (aC V0) 174 175 (by decide) rfl).symm
/-- The contents after step 175. -/
def val176 (V0 : Valuation τ sig (Elt Ideal)) : Valuation τ sig (Elt Ideal) := after (stepOps175 (F := Ideal)) (val175 V0)
theorem val176_main_arg0 (V0 : Valuation τ sig (Elt Ideal)) : val176 V0 (Proc.devRef .tc main_arg0) = aX V0 :=
  (after_keep _ 10 stepOps175_ok main_arg0 (by decide +kernel) (val175 V0)).trans (val175_main_arg0 V0)
theorem val176_main_arg1 (V0 : Valuation τ sig (Elt Ideal)) : val176 V0 (Proc.devRef .tc main_arg1) = aA V0 :=
  (after_keep _ 10 stepOps175_ok main_arg1 (by decide +kernel) (val175 V0)).trans (val175_main_arg1 V0)
theorem val176_main_arg2 (V0 : Valuation τ sig (Elt Ideal)) : val176 V0 (Proc.devRef .tc main_arg2) = aB V0 :=
  (after_keep _ 10 stepOps175_ok main_arg2 (by decide +kernel) (val175 V0)).trans (val175_main_arg2 V0)
theorem val176_main_arg3 (V0 : Valuation τ sig (Elt Ideal)) : val176 V0 (Proc.devRef .tc main_arg3) = aC V0 :=
  (after_keep _ 10 stepOps175_ok main_arg3 (by decide +kernel) (val175 V0)).trans (val175_main_arg3 V0)
theorem val176_main_v3 (V0 : Valuation τ sig (Elt Ideal)) : val176 V0 (Proc.devRef .tc main_v3) = decay (aA V0) :=
  (after_keep _ 10 stepOps175_ok main_v3 (by decide +kernel) (val175 V0)).trans (val175_main_v3 V0)
theorem val176_h (V0 : Valuation τ sig (Elt Ideal)) : val176 V0 (Proc.devRef .tc main_v3515) = hI (aX V0) (aA V0) (aB V0) 175 := by
  refine ((step175_val (val175 V0)).1).trans ?_
  rw [val175_main_arg0 V0, val175_main_v3 V0, val175_main_arg2 V0, val175_h V0]
  exact (hI_at (aX V0) (aA V0) (aB V0) 174 175 (by decide) rfl).symm
theorem val176_y (V0 : Valuation τ sig (Elt Ideal)) : val176 V0 (Proc.devRef .tc main_v3523) = yJ (aX V0) (aA V0) (aB V0) (aC V0) 176 := by
  refine ((step175_val (val175 V0)).2).trans ?_
  rw [val175_main_arg0 V0, val175_main_v3 V0, val175_main_arg2 V0, val175_main_arg3 V0, val175_h V0, val175_y V0]
  rw [← hI_at (aX V0) (aA V0) (aB V0) 174 175 (by decide) rfl]
  exact (yJ_at (aX V0) (aA V0) (aB V0) (aC V0) 175 176 (by decide) rfl).symm
/-- The contents after step 176. -/
def val177 (V0 : Valuation τ sig (Elt Ideal)) : Valuation τ sig (Elt Ideal) := after (stepOps176 (F := Ideal)) (val176 V0)
theorem val177_main_arg0 (V0 : Valuation τ sig (Elt Ideal)) : val177 V0 (Proc.devRef .tc main_arg0) = aX V0 :=
  (after_keep _ 10 stepOps176_ok main_arg0 (by decide +kernel) (val176 V0)).trans (val176_main_arg0 V0)
theorem val177_main_arg1 (V0 : Valuation τ sig (Elt Ideal)) : val177 V0 (Proc.devRef .tc main_arg1) = aA V0 :=
  (after_keep _ 10 stepOps176_ok main_arg1 (by decide +kernel) (val176 V0)).trans (val176_main_arg1 V0)
theorem val177_main_arg2 (V0 : Valuation τ sig (Elt Ideal)) : val177 V0 (Proc.devRef .tc main_arg2) = aB V0 :=
  (after_keep _ 10 stepOps176_ok main_arg2 (by decide +kernel) (val176 V0)).trans (val176_main_arg2 V0)
theorem val177_main_arg3 (V0 : Valuation τ sig (Elt Ideal)) : val177 V0 (Proc.devRef .tc main_arg3) = aC V0 :=
  (after_keep _ 10 stepOps176_ok main_arg3 (by decide +kernel) (val176 V0)).trans (val176_main_arg3 V0)
theorem val177_main_v3 (V0 : Valuation τ sig (Elt Ideal)) : val177 V0 (Proc.devRef .tc main_v3) = decay (aA V0) :=
  (after_keep _ 10 stepOps176_ok main_v3 (by decide +kernel) (val176 V0)).trans (val176_main_v3 V0)
theorem val177_h (V0 : Valuation τ sig (Elt Ideal)) : val177 V0 (Proc.devRef .tc main_v3535) = hI (aX V0) (aA V0) (aB V0) 176 := by
  refine ((step176_val (val176 V0)).1).trans ?_
  rw [val176_main_arg0 V0, val176_main_v3 V0, val176_main_arg2 V0, val176_h V0]
  exact (hI_at (aX V0) (aA V0) (aB V0) 175 176 (by decide) rfl).symm
theorem val177_y (V0 : Valuation τ sig (Elt Ideal)) : val177 V0 (Proc.devRef .tc main_v3543) = yJ (aX V0) (aA V0) (aB V0) (aC V0) 177 := by
  refine ((step176_val (val176 V0)).2).trans ?_
  rw [val176_main_arg0 V0, val176_main_v3 V0, val176_main_arg2 V0, val176_main_arg3 V0, val176_h V0, val176_y V0]
  rw [← hI_at (aX V0) (aA V0) (aB V0) 175 176 (by decide) rfl]
  exact (yJ_at (aX V0) (aA V0) (aB V0) (aC V0) 176 177 (by decide) rfl).symm
/-- The contents after step 177. -/
def val178 (V0 : Valuation τ sig (Elt Ideal)) : Valuation τ sig (Elt Ideal) := after (stepOps177 (F := Ideal)) (val177 V0)
theorem val178_main_arg0 (V0 : Valuation τ sig (Elt Ideal)) : val178 V0 (Proc.devRef .tc main_arg0) = aX V0 :=
  (after_keep _ 10 stepOps177_ok main_arg0 (by decide +kernel) (val177 V0)).trans (val177_main_arg0 V0)
theorem val178_main_arg1 (V0 : Valuation τ sig (Elt Ideal)) : val178 V0 (Proc.devRef .tc main_arg1) = aA V0 :=
  (after_keep _ 10 stepOps177_ok main_arg1 (by decide +kernel) (val177 V0)).trans (val177_main_arg1 V0)
theorem val178_main_arg2 (V0 : Valuation τ sig (Elt Ideal)) : val178 V0 (Proc.devRef .tc main_arg2) = aB V0 :=
  (after_keep _ 10 stepOps177_ok main_arg2 (by decide +kernel) (val177 V0)).trans (val177_main_arg2 V0)
theorem val178_main_arg3 (V0 : Valuation τ sig (Elt Ideal)) : val178 V0 (Proc.devRef .tc main_arg3) = aC V0 :=
  (after_keep _ 10 stepOps177_ok main_arg3 (by decide +kernel) (val177 V0)).trans (val177_main_arg3 V0)
theorem val178_main_v3 (V0 : Valuation τ sig (Elt Ideal)) : val178 V0 (Proc.devRef .tc main_v3) = decay (aA V0) :=
  (after_keep _ 10 stepOps177_ok main_v3 (by decide +kernel) (val177 V0)).trans (val177_main_v3 V0)
theorem val178_h (V0 : Valuation τ sig (Elt Ideal)) : val178 V0 (Proc.devRef .tc main_v3555) = hI (aX V0) (aA V0) (aB V0) 177 := by
  refine ((step177_val (val177 V0)).1).trans ?_
  rw [val177_main_arg0 V0, val177_main_v3 V0, val177_main_arg2 V0, val177_h V0]
  exact (hI_at (aX V0) (aA V0) (aB V0) 176 177 (by decide) rfl).symm
theorem val178_y (V0 : Valuation τ sig (Elt Ideal)) : val178 V0 (Proc.devRef .tc main_v3563) = yJ (aX V0) (aA V0) (aB V0) (aC V0) 178 := by
  refine ((step177_val (val177 V0)).2).trans ?_
  rw [val177_main_arg0 V0, val177_main_v3 V0, val177_main_arg2 V0, val177_main_arg3 V0, val177_h V0, val177_y V0]
  rw [← hI_at (aX V0) (aA V0) (aB V0) 176 177 (by decide) rfl]
  exact (yJ_at (aX V0) (aA V0) (aB V0) (aC V0) 177 178 (by decide) rfl).symm
/-- The contents after step 178. -/
def val179 (V0 : Valuation τ sig (Elt Ideal)) : Valuation τ sig (Elt Ideal) := after (stepOps178 (F := Ideal)) (val178 V0)
theorem val179_main_arg0 (V0 : Valuation τ sig (Elt Ideal)) : val179 V0 (Proc.devRef .tc main_arg0) = aX V0 :=
  (after_keep _ 10 stepOps178_ok main_arg0 (by decide +kernel) (val178 V0)).trans (val178_main_arg0 V0)
theorem val179_main_arg1 (V0 : Valuation τ sig (Elt Ideal)) : val179 V0 (Proc.devRef .tc main_arg1) = aA V0 :=
  (after_keep _ 10 stepOps178_ok main_arg1 (by decide +kernel) (val178 V0)).trans (val178_main_arg1 V0)
theorem val179_main_arg2 (V0 : Valuation τ sig (Elt Ideal)) : val179 V0 (Proc.devRef .tc main_arg2) = aB V0 :=
  (after_keep _ 10 stepOps178_ok main_arg2 (by decide +kernel) (val178 V0)).trans (val178_main_arg2 V0)
theorem val179_main_arg3 (V0 : Valuation τ sig (Elt Ideal)) : val179 V0 (Proc.devRef .tc main_arg3) = aC V0 :=
  (after_keep _ 10 stepOps178_ok main_arg3 (by decide +kernel) (val178 V0)).trans (val178_main_arg3 V0)
theorem val179_main_v3 (V0 : Valuation τ sig (Elt Ideal)) : val179 V0 (Proc.devRef .tc main_v3) = decay (aA V0) :=
  (after_keep _ 10 stepOps178_ok main_v3 (by decide +kernel) (val178 V0)).trans (val178_main_v3 V0)
theorem val179_h (V0 : Valuation τ sig (Elt Ideal)) : val179 V0 (Proc.devRef .tc main_v3575) = hI (aX V0) (aA V0) (aB V0) 178 := by
  refine ((step178_val (val178 V0)).1).trans ?_
  rw [val178_main_arg0 V0, val178_main_v3 V0, val178_main_arg2 V0, val178_h V0]
  exact (hI_at (aX V0) (aA V0) (aB V0) 177 178 (by decide) rfl).symm
theorem val179_y (V0 : Valuation τ sig (Elt Ideal)) : val179 V0 (Proc.devRef .tc main_v3583) = yJ (aX V0) (aA V0) (aB V0) (aC V0) 179 := by
  refine ((step178_val (val178 V0)).2).trans ?_
  rw [val178_main_arg0 V0, val178_main_v3 V0, val178_main_arg2 V0, val178_main_arg3 V0, val178_h V0, val178_y V0]
  rw [← hI_at (aX V0) (aA V0) (aB V0) 177 178 (by decide) rfl]
  exact (yJ_at (aX V0) (aA V0) (aB V0) (aC V0) 178 179 (by decide) rfl).symm
/-- The contents after step 179. -/
def val180 (V0 : Valuation τ sig (Elt Ideal)) : Valuation τ sig (Elt Ideal) := after (stepOps179 (F := Ideal)) (val179 V0)
theorem val180_main_arg0 (V0 : Valuation τ sig (Elt Ideal)) : val180 V0 (Proc.devRef .tc main_arg0) = aX V0 :=
  (after_keep _ 10 stepOps179_ok main_arg0 (by decide +kernel) (val179 V0)).trans (val179_main_arg0 V0)
theorem val180_main_arg1 (V0 : Valuation τ sig (Elt Ideal)) : val180 V0 (Proc.devRef .tc main_arg1) = aA V0 :=
  (after_keep _ 10 stepOps179_ok main_arg1 (by decide +kernel) (val179 V0)).trans (val179_main_arg1 V0)
theorem val180_main_arg2 (V0 : Valuation τ sig (Elt Ideal)) : val180 V0 (Proc.devRef .tc main_arg2) = aB V0 :=
  (after_keep _ 10 stepOps179_ok main_arg2 (by decide +kernel) (val179 V0)).trans (val179_main_arg2 V0)
theorem val180_main_arg3 (V0 : Valuation τ sig (Elt Ideal)) : val180 V0 (Proc.devRef .tc main_arg3) = aC V0 :=
  (after_keep _ 10 stepOps179_ok main_arg3 (by decide +kernel) (val179 V0)).trans (val179_main_arg3 V0)
theorem val180_main_v3 (V0 : Valuation τ sig (Elt Ideal)) : val180 V0 (Proc.devRef .tc main_v3) = decay (aA V0) :=
  (after_keep _ 10 stepOps179_ok main_v3 (by decide +kernel) (val179 V0)).trans (val179_main_v3 V0)
theorem val180_h (V0 : Valuation τ sig (Elt Ideal)) : val180 V0 (Proc.devRef .tc main_v3595) = hI (aX V0) (aA V0) (aB V0) 179 := by
  refine ((step179_val (val179 V0)).1).trans ?_
  rw [val179_main_arg0 V0, val179_main_v3 V0, val179_main_arg2 V0, val179_h V0]
  exact (hI_at (aX V0) (aA V0) (aB V0) 178 179 (by decide) rfl).symm
theorem val180_y (V0 : Valuation τ sig (Elt Ideal)) : val180 V0 (Proc.devRef .tc main_v3603) = yJ (aX V0) (aA V0) (aB V0) (aC V0) 180 := by
  refine ((step179_val (val179 V0)).2).trans ?_
  rw [val179_main_arg0 V0, val179_main_v3 V0, val179_main_arg2 V0, val179_main_arg3 V0, val179_h V0, val179_y V0]
  rw [← hI_at (aX V0) (aA V0) (aB V0) 178 179 (by decide) rfl]
  exact (yJ_at (aX V0) (aA V0) (aB V0) (aC V0) 179 180 (by decide) rfl).symm
/-- The contents after step 180. -/
def val181 (V0 : Valuation τ sig (Elt Ideal)) : Valuation τ sig (Elt Ideal) := after (stepOps180 (F := Ideal)) (val180 V0)
theorem val181_main_arg0 (V0 : Valuation τ sig (Elt Ideal)) : val181 V0 (Proc.devRef .tc main_arg0) = aX V0 :=
  (after_keep _ 10 stepOps180_ok main_arg0 (by decide +kernel) (val180 V0)).trans (val180_main_arg0 V0)
theorem val181_main_arg1 (V0 : Valuation τ sig (Elt Ideal)) : val181 V0 (Proc.devRef .tc main_arg1) = aA V0 :=
  (after_keep _ 10 stepOps180_ok main_arg1 (by decide +kernel) (val180 V0)).trans (val180_main_arg1 V0)
theorem val181_main_arg2 (V0 : Valuation τ sig (Elt Ideal)) : val181 V0 (Proc.devRef .tc main_arg2) = aB V0 :=
  (after_keep _ 10 stepOps180_ok main_arg2 (by decide +kernel) (val180 V0)).trans (val180_main_arg2 V0)
theorem val181_main_arg3 (V0 : Valuation τ sig (Elt Ideal)) : val181 V0 (Proc.devRef .tc main_arg3) = aC V0 :=
  (after_keep _ 10 stepOps180_ok main_arg3 (by decide +kernel) (val180 V0)).trans (val180_main_arg3 V0)
theorem val181_main_v3 (V0 : Valuation τ sig (Elt Ideal)) : val181 V0 (Proc.devRef .tc main_v3) = decay (aA V0) :=
  (after_keep _ 10 stepOps180_ok main_v3 (by decide +kernel) (val180 V0)).trans (val180_main_v3 V0)
theorem val181_h (V0 : Valuation τ sig (Elt Ideal)) : val181 V0 (Proc.devRef .tc main_v3615) = hI (aX V0) (aA V0) (aB V0) 180 := by
  refine ((step180_val (val180 V0)).1).trans ?_
  rw [val180_main_arg0 V0, val180_main_v3 V0, val180_main_arg2 V0, val180_h V0]
  exact (hI_at (aX V0) (aA V0) (aB V0) 179 180 (by decide) rfl).symm
theorem val181_y (V0 : Valuation τ sig (Elt Ideal)) : val181 V0 (Proc.devRef .tc main_v3623) = yJ (aX V0) (aA V0) (aB V0) (aC V0) 181 := by
  refine ((step180_val (val180 V0)).2).trans ?_
  rw [val180_main_arg0 V0, val180_main_v3 V0, val180_main_arg2 V0, val180_main_arg3 V0, val180_h V0, val180_y V0]
  rw [← hI_at (aX V0) (aA V0) (aB V0) 179 180 (by decide) rfl]
  exact (yJ_at (aX V0) (aA V0) (aB V0) (aC V0) 180 181 (by decide) rfl).symm
/-- The contents after step 181. -/
def val182 (V0 : Valuation τ sig (Elt Ideal)) : Valuation τ sig (Elt Ideal) := after (stepOps181 (F := Ideal)) (val181 V0)
theorem val182_main_arg0 (V0 : Valuation τ sig (Elt Ideal)) : val182 V0 (Proc.devRef .tc main_arg0) = aX V0 :=
  (after_keep _ 10 stepOps181_ok main_arg0 (by decide +kernel) (val181 V0)).trans (val181_main_arg0 V0)
theorem val182_main_arg1 (V0 : Valuation τ sig (Elt Ideal)) : val182 V0 (Proc.devRef .tc main_arg1) = aA V0 :=
  (after_keep _ 10 stepOps181_ok main_arg1 (by decide +kernel) (val181 V0)).trans (val181_main_arg1 V0)
theorem val182_main_arg2 (V0 : Valuation τ sig (Elt Ideal)) : val182 V0 (Proc.devRef .tc main_arg2) = aB V0 :=
  (after_keep _ 10 stepOps181_ok main_arg2 (by decide +kernel) (val181 V0)).trans (val181_main_arg2 V0)
theorem val182_main_arg3 (V0 : Valuation τ sig (Elt Ideal)) : val182 V0 (Proc.devRef .tc main_arg3) = aC V0 :=
  (after_keep _ 10 stepOps181_ok main_arg3 (by decide +kernel) (val181 V0)).trans (val181_main_arg3 V0)
theorem val182_main_v3 (V0 : Valuation τ sig (Elt Ideal)) : val182 V0 (Proc.devRef .tc main_v3) = decay (aA V0) :=
  (after_keep _ 10 stepOps181_ok main_v3 (by decide +kernel) (val181 V0)).trans (val181_main_v3 V0)
theorem val182_h (V0 : Valuation τ sig (Elt Ideal)) : val182 V0 (Proc.devRef .tc main_v3635) = hI (aX V0) (aA V0) (aB V0) 181 := by
  refine ((step181_val (val181 V0)).1).trans ?_
  rw [val181_main_arg0 V0, val181_main_v3 V0, val181_main_arg2 V0, val181_h V0]
  exact (hI_at (aX V0) (aA V0) (aB V0) 180 181 (by decide) rfl).symm
theorem val182_y (V0 : Valuation τ sig (Elt Ideal)) : val182 V0 (Proc.devRef .tc main_v3643) = yJ (aX V0) (aA V0) (aB V0) (aC V0) 182 := by
  refine ((step181_val (val181 V0)).2).trans ?_
  rw [val181_main_arg0 V0, val181_main_v3 V0, val181_main_arg2 V0, val181_main_arg3 V0, val181_h V0, val181_y V0]
  rw [← hI_at (aX V0) (aA V0) (aB V0) 180 181 (by decide) rfl]
  exact (yJ_at (aX V0) (aA V0) (aB V0) (aC V0) 181 182 (by decide) rfl).symm
/-- The contents after step 182. -/
def val183 (V0 : Valuation τ sig (Elt Ideal)) : Valuation τ sig (Elt Ideal) := after (stepOps182 (F := Ideal)) (val182 V0)
theorem val183_main_arg0 (V0 : Valuation τ sig (Elt Ideal)) : val183 V0 (Proc.devRef .tc main_arg0) = aX V0 :=
  (after_keep _ 10 stepOps182_ok main_arg0 (by decide +kernel) (val182 V0)).trans (val182_main_arg0 V0)
theorem val183_main_arg1 (V0 : Valuation τ sig (Elt Ideal)) : val183 V0 (Proc.devRef .tc main_arg1) = aA V0 :=
  (after_keep _ 10 stepOps182_ok main_arg1 (by decide +kernel) (val182 V0)).trans (val182_main_arg1 V0)
theorem val183_main_arg2 (V0 : Valuation τ sig (Elt Ideal)) : val183 V0 (Proc.devRef .tc main_arg2) = aB V0 :=
  (after_keep _ 10 stepOps182_ok main_arg2 (by decide +kernel) (val182 V0)).trans (val182_main_arg2 V0)
theorem val183_main_arg3 (V0 : Valuation τ sig (Elt Ideal)) : val183 V0 (Proc.devRef .tc main_arg3) = aC V0 :=
  (after_keep _ 10 stepOps182_ok main_arg3 (by decide +kernel) (val182 V0)).trans (val182_main_arg3 V0)
theorem val183_main_v3 (V0 : Valuation τ sig (Elt Ideal)) : val183 V0 (Proc.devRef .tc main_v3) = decay (aA V0) :=
  (after_keep _ 10 stepOps182_ok main_v3 (by decide +kernel) (val182 V0)).trans (val182_main_v3 V0)
theorem val183_h (V0 : Valuation τ sig (Elt Ideal)) : val183 V0 (Proc.devRef .tc main_v3655) = hI (aX V0) (aA V0) (aB V0) 182 := by
  refine ((step182_val (val182 V0)).1).trans ?_
  rw [val182_main_arg0 V0, val182_main_v3 V0, val182_main_arg2 V0, val182_h V0]
  exact (hI_at (aX V0) (aA V0) (aB V0) 181 182 (by decide) rfl).symm
theorem val183_y (V0 : Valuation τ sig (Elt Ideal)) : val183 V0 (Proc.devRef .tc main_v3663) = yJ (aX V0) (aA V0) (aB V0) (aC V0) 183 := by
  refine ((step182_val (val182 V0)).2).trans ?_
  rw [val182_main_arg0 V0, val182_main_v3 V0, val182_main_arg2 V0, val182_main_arg3 V0, val182_h V0, val182_y V0]
  rw [← hI_at (aX V0) (aA V0) (aB V0) 181 182 (by decide) rfl]
  exact (yJ_at (aX V0) (aA V0) (aB V0) (aC V0) 182 183 (by decide) rfl).symm
/-- The contents after step 183. -/
def val184 (V0 : Valuation τ sig (Elt Ideal)) : Valuation τ sig (Elt Ideal) := after (stepOps183 (F := Ideal)) (val183 V0)
theorem val184_main_arg0 (V0 : Valuation τ sig (Elt Ideal)) : val184 V0 (Proc.devRef .tc main_arg0) = aX V0 :=
  (after_keep _ 10 stepOps183_ok main_arg0 (by decide +kernel) (val183 V0)).trans (val183_main_arg0 V0)
theorem val184_main_arg1 (V0 : Valuation τ sig (Elt Ideal)) : val184 V0 (Proc.devRef .tc main_arg1) = aA V0 :=
  (after_keep _ 10 stepOps183_ok main_arg1 (by decide +kernel) (val183 V0)).trans (val183_main_arg1 V0)
theorem val184_main_arg2 (V0 : Valuation τ sig (Elt Ideal)) : val184 V0 (Proc.devRef .tc main_arg2) = aB V0 :=
  (after_keep _ 10 stepOps183_ok main_arg2 (by decide +kernel) (val183 V0)).trans (val183_main_arg2 V0)
theorem val184_main_arg3 (V0 : Valuation τ sig (Elt Ideal)) : val184 V0 (Proc.devRef .tc main_arg3) = aC V0 :=
  (after_keep _ 10 stepOps183_ok main_arg3 (by decide +kernel) (val183 V0)).trans (val183_main_arg3 V0)
theorem val184_main_v3 (V0 : Valuation τ sig (Elt Ideal)) : val184 V0 (Proc.devRef .tc main_v3) = decay (aA V0) :=
  (after_keep _ 10 stepOps183_ok main_v3 (by decide +kernel) (val183 V0)).trans (val183_main_v3 V0)
theorem val184_h (V0 : Valuation τ sig (Elt Ideal)) : val184 V0 (Proc.devRef .tc main_v3675) = hI (aX V0) (aA V0) (aB V0) 183 := by
  refine ((step183_val (val183 V0)).1).trans ?_
  rw [val183_main_arg0 V0, val183_main_v3 V0, val183_main_arg2 V0, val183_h V0]
  exact (hI_at (aX V0) (aA V0) (aB V0) 182 183 (by decide) rfl).symm
theorem val184_y (V0 : Valuation τ sig (Elt Ideal)) : val184 V0 (Proc.devRef .tc main_v3683) = yJ (aX V0) (aA V0) (aB V0) (aC V0) 184 := by
  refine ((step183_val (val183 V0)).2).trans ?_
  rw [val183_main_arg0 V0, val183_main_v3 V0, val183_main_arg2 V0, val183_main_arg3 V0, val183_h V0, val183_y V0]
  rw [← hI_at (aX V0) (aA V0) (aB V0) 182 183 (by decide) rfl]
  exact (yJ_at (aX V0) (aA V0) (aB V0) (aC V0) 183 184 (by decide) rfl).symm
/-- The contents after step 184. -/
def val185 (V0 : Valuation τ sig (Elt Ideal)) : Valuation τ sig (Elt Ideal) := after (stepOps184 (F := Ideal)) (val184 V0)
theorem val185_main_arg0 (V0 : Valuation τ sig (Elt Ideal)) : val185 V0 (Proc.devRef .tc main_arg0) = aX V0 :=
  (after_keep _ 10 stepOps184_ok main_arg0 (by decide +kernel) (val184 V0)).trans (val184_main_arg0 V0)
theorem val185_main_arg1 (V0 : Valuation τ sig (Elt Ideal)) : val185 V0 (Proc.devRef .tc main_arg1) = aA V0 :=
  (after_keep _ 10 stepOps184_ok main_arg1 (by decide +kernel) (val184 V0)).trans (val184_main_arg1 V0)
theorem val185_main_arg2 (V0 : Valuation τ sig (Elt Ideal)) : val185 V0 (Proc.devRef .tc main_arg2) = aB V0 :=
  (after_keep _ 10 stepOps184_ok main_arg2 (by decide +kernel) (val184 V0)).trans (val184_main_arg2 V0)
theorem val185_main_arg3 (V0 : Valuation τ sig (Elt Ideal)) : val185 V0 (Proc.devRef .tc main_arg3) = aC V0 :=
  (after_keep _ 10 stepOps184_ok main_arg3 (by decide +kernel) (val184 V0)).trans (val184_main_arg3 V0)
theorem val185_main_v3 (V0 : Valuation τ sig (Elt Ideal)) : val185 V0 (Proc.devRef .tc main_v3) = decay (aA V0) :=
  (after_keep _ 10 stepOps184_ok main_v3 (by decide +kernel) (val184 V0)).trans (val184_main_v3 V0)
theorem val185_h (V0 : Valuation τ sig (Elt Ideal)) : val185 V0 (Proc.devRef .tc main_v3695) = hI (aX V0) (aA V0) (aB V0) 184 := by
  refine ((step184_val (val184 V0)).1).trans ?_
  rw [val184_main_arg0 V0, val184_main_v3 V0, val184_main_arg2 V0, val184_h V0]
  exact (hI_at (aX V0) (aA V0) (aB V0) 183 184 (by decide) rfl).symm
theorem val185_y (V0 : Valuation τ sig (Elt Ideal)) : val185 V0 (Proc.devRef .tc main_v3703) = yJ (aX V0) (aA V0) (aB V0) (aC V0) 185 := by
  refine ((step184_val (val184 V0)).2).trans ?_
  rw [val184_main_arg0 V0, val184_main_v3 V0, val184_main_arg2 V0, val184_main_arg3 V0, val184_h V0, val184_y V0]
  rw [← hI_at (aX V0) (aA V0) (aB V0) 183 184 (by decide) rfl]
  exact (yJ_at (aX V0) (aA V0) (aB V0) (aC V0) 184 185 (by decide) rfl).symm
/-- The contents after step 185. -/
def val186 (V0 : Valuation τ sig (Elt Ideal)) : Valuation τ sig (Elt Ideal) := after (stepOps185 (F := Ideal)) (val185 V0)
theorem val186_main_arg0 (V0 : Valuation τ sig (Elt Ideal)) : val186 V0 (Proc.devRef .tc main_arg0) = aX V0 :=
  (after_keep _ 10 stepOps185_ok main_arg0 (by decide +kernel) (val185 V0)).trans (val185_main_arg0 V0)
theorem val186_main_arg1 (V0 : Valuation τ sig (Elt Ideal)) : val186 V0 (Proc.devRef .tc main_arg1) = aA V0 :=
  (after_keep _ 10 stepOps185_ok main_arg1 (by decide +kernel) (val185 V0)).trans (val185_main_arg1 V0)
theorem val186_main_arg2 (V0 : Valuation τ sig (Elt Ideal)) : val186 V0 (Proc.devRef .tc main_arg2) = aB V0 :=
  (after_keep _ 10 stepOps185_ok main_arg2 (by decide +kernel) (val185 V0)).trans (val185_main_arg2 V0)
theorem val186_main_arg3 (V0 : Valuation τ sig (Elt Ideal)) : val186 V0 (Proc.devRef .tc main_arg3) = aC V0 :=
  (after_keep _ 10 stepOps185_ok main_arg3 (by decide +kernel) (val185 V0)).trans (val185_main_arg3 V0)
theorem val186_main_v3 (V0 : Valuation τ sig (Elt Ideal)) : val186 V0 (Proc.devRef .tc main_v3) = decay (aA V0) :=
  (after_keep _ 10 stepOps185_ok main_v3 (by decide +kernel) (val185 V0)).trans (val185_main_v3 V0)
theorem val186_h (V0 : Valuation τ sig (Elt Ideal)) : val186 V0 (Proc.devRef .tc main_v3715) = hI (aX V0) (aA V0) (aB V0) 185 := by
  refine ((step185_val (val185 V0)).1).trans ?_
  rw [val185_main_arg0 V0, val185_main_v3 V0, val185_main_arg2 V0, val185_h V0]
  exact (hI_at (aX V0) (aA V0) (aB V0) 184 185 (by decide) rfl).symm
theorem val186_y (V0 : Valuation τ sig (Elt Ideal)) : val186 V0 (Proc.devRef .tc main_v3723) = yJ (aX V0) (aA V0) (aB V0) (aC V0) 186 := by
  refine ((step185_val (val185 V0)).2).trans ?_
  rw [val185_main_arg0 V0, val185_main_v3 V0, val185_main_arg2 V0, val185_main_arg3 V0, val185_h V0, val185_y V0]
  rw [← hI_at (aX V0) (aA V0) (aB V0) 184 185 (by decide) rfl]
  exact (yJ_at (aX V0) (aA V0) (aB V0) (aC V0) 185 186 (by decide) rfl).symm
/-- The contents after step 186. -/
def val187 (V0 : Valuation τ sig (Elt Ideal)) : Valuation τ sig (Elt Ideal) := after (stepOps186 (F := Ideal)) (val186 V0)
theorem val187_main_arg0 (V0 : Valuation τ sig (Elt Ideal)) : val187 V0 (Proc.devRef .tc main_arg0) = aX V0 :=
  (after_keep _ 10 stepOps186_ok main_arg0 (by decide +kernel) (val186 V0)).trans (val186_main_arg0 V0)
theorem val187_main_arg1 (V0 : Valuation τ sig (Elt Ideal)) : val187 V0 (Proc.devRef .tc main_arg1) = aA V0 :=
  (after_keep _ 10 stepOps186_ok main_arg1 (by decide +kernel) (val186 V0)).trans (val186_main_arg1 V0)
theorem val187_main_arg2 (V0 : Valuation τ sig (Elt Ideal)) : val187 V0 (Proc.devRef .tc main_arg2) = aB V0 :=
  (after_keep _ 10 stepOps186_ok main_arg2 (by decide +kernel) (val186 V0)).trans (val186_main_arg2 V0)
theorem val187_main_arg3 (V0 : Valuation τ sig (Elt Ideal)) : val187 V0 (Proc.devRef .tc main_arg3) = aC V0 :=
  (after_keep _ 10 stepOps186_ok main_arg3 (by decide +kernel) (val186 V0)).trans (val186_main_arg3 V0)
theorem val187_main_v3 (V0 : Valuation τ sig (Elt Ideal)) : val187 V0 (Proc.devRef .tc main_v3) = decay (aA V0) :=
  (after_keep _ 10 stepOps186_ok main_v3 (by decide +kernel) (val186 V0)).trans (val186_main_v3 V0)
theorem val187_h (V0 : Valuation τ sig (Elt Ideal)) : val187 V0 (Proc.devRef .tc main_v3735) = hI (aX V0) (aA V0) (aB V0) 186 := by
  refine ((step186_val (val186 V0)).1).trans ?_
  rw [val186_main_arg0 V0, val186_main_v3 V0, val186_main_arg2 V0, val186_h V0]
  exact (hI_at (aX V0) (aA V0) (aB V0) 185 186 (by decide) rfl).symm
theorem val187_y (V0 : Valuation τ sig (Elt Ideal)) : val187 V0 (Proc.devRef .tc main_v3743) = yJ (aX V0) (aA V0) (aB V0) (aC V0) 187 := by
  refine ((step186_val (val186 V0)).2).trans ?_
  rw [val186_main_arg0 V0, val186_main_v3 V0, val186_main_arg2 V0, val186_main_arg3 V0, val186_h V0, val186_y V0]
  rw [← hI_at (aX V0) (aA V0) (aB V0) 185 186 (by decide) rfl]
  exact (yJ_at (aX V0) (aA V0) (aB V0) (aC V0) 186 187 (by decide) rfl).symm
/-- The contents after step 187. -/
def val188 (V0 : Valuation τ sig (Elt Ideal)) : Valuation τ sig (Elt Ideal) := after (stepOps187 (F := Ideal)) (val187 V0)
theorem val188_main_arg0 (V0 : Valuation τ sig (Elt Ideal)) : val188 V0 (Proc.devRef .tc main_arg0) = aX V0 :=
  (after_keep _ 10 stepOps187_ok main_arg0 (by decide +kernel) (val187 V0)).trans (val187_main_arg0 V0)
theorem val188_main_arg1 (V0 : Valuation τ sig (Elt Ideal)) : val188 V0 (Proc.devRef .tc main_arg1) = aA V0 :=
  (after_keep _ 10 stepOps187_ok main_arg1 (by decide +kernel) (val187 V0)).trans (val187_main_arg1 V0)
theorem val188_main_arg2 (V0 : Valuation τ sig (Elt Ideal)) : val188 V0 (Proc.devRef .tc main_arg2) = aB V0 :=
  (after_keep _ 10 stepOps187_ok main_arg2 (by decide +kernel) (val187 V0)).trans (val187_main_arg2 V0)
theorem val188_main_arg3 (V0 : Valuation τ sig (Elt Ideal)) : val188 V0 (Proc.devRef .tc main_arg3) = aC V0 :=
  (after_keep _ 10 stepOps187_ok main_arg3 (by decide +kernel) (val187 V0)).trans (val187_main_arg3 V0)
theorem val188_main_v3 (V0 : Valuation τ sig (Elt Ideal)) : val188 V0 (Proc.devRef .tc main_v3) = decay (aA V0) :=
  (after_keep _ 10 stepOps187_ok main_v3 (by decide +kernel) (val187 V0)).trans (val187_main_v3 V0)
theorem val188_h (V0 : Valuation τ sig (Elt Ideal)) : val188 V0 (Proc.devRef .tc main_v3755) = hI (aX V0) (aA V0) (aB V0) 187 := by
  refine ((step187_val (val187 V0)).1).trans ?_
  rw [val187_main_arg0 V0, val187_main_v3 V0, val187_main_arg2 V0, val187_h V0]
  exact (hI_at (aX V0) (aA V0) (aB V0) 186 187 (by decide) rfl).symm
theorem val188_y (V0 : Valuation τ sig (Elt Ideal)) : val188 V0 (Proc.devRef .tc main_v3763) = yJ (aX V0) (aA V0) (aB V0) (aC V0) 188 := by
  refine ((step187_val (val187 V0)).2).trans ?_
  rw [val187_main_arg0 V0, val187_main_v3 V0, val187_main_arg2 V0, val187_main_arg3 V0, val187_h V0, val187_y V0]
  rw [← hI_at (aX V0) (aA V0) (aB V0) 186 187 (by decide) rfl]
  exact (yJ_at (aX V0) (aA V0) (aB V0) (aC V0) 187 188 (by decide) rfl).symm
/-- The contents after step 188. -/
def val189 (V0 : Valuation τ sig (Elt Ideal)) : Valuation τ sig (Elt Ideal) := after (stepOps188 (F := Ideal)) (val188 V0)
theorem val189_main_arg0 (V0 : Valuation τ sig (Elt Ideal)) : val189 V0 (Proc.devRef .tc main_arg0) = aX V0 :=
  (after_keep _ 10 stepOps188_ok main_arg0 (by decide +kernel) (val188 V0)).trans (val188_main_arg0 V0)
theorem val189_main_arg1 (V0 : Valuation τ sig (Elt Ideal)) : val189 V0 (Proc.devRef .tc main_arg1) = aA V0 :=
  (after_keep _ 10 stepOps188_ok main_arg1 (by decide +kernel) (val188 V0)).trans (val188_main_arg1 V0)
theorem val189_main_arg2 (V0 : Valuation τ sig (Elt Ideal)) : val189 V0 (Proc.devRef .tc main_arg2) = aB V0 :=
  (after_keep _ 10 stepOps188_ok main_arg2 (by decide +kernel) (val188 V0)).trans (val188_main_arg2 V0)
theorem val189_main_arg3 (V0 : Valuation τ sig (Elt Ideal)) : val189 V0 (Proc.devRef .tc main_arg3) = aC V0 :=
  (after_keep _ 10 stepOps188_ok main_arg3 (by decide +kernel) (val188 V0)).trans (val188_main_arg3 V0)
theorem val189_main_v3 (V0 : Valuation τ sig (Elt Ideal)) : val189 V0 (Proc.devRef .tc main_v3) = decay (aA V0) :=
  (after_keep _ 10 stepOps188_ok main_v3 (by decide +kernel) (val188 V0)).trans (val188_main_v3 V0)
theorem val189_h (V0 : Valuation τ sig (Elt Ideal)) : val189 V0 (Proc.devRef .tc main_v3775) = hI (aX V0) (aA V0) (aB V0) 188 := by
  refine ((step188_val (val188 V0)).1).trans ?_
  rw [val188_main_arg0 V0, val188_main_v3 V0, val188_main_arg2 V0, val188_h V0]
  exact (hI_at (aX V0) (aA V0) (aB V0) 187 188 (by decide) rfl).symm
theorem val189_y (V0 : Valuation τ sig (Elt Ideal)) : val189 V0 (Proc.devRef .tc main_v3783) = yJ (aX V0) (aA V0) (aB V0) (aC V0) 189 := by
  refine ((step188_val (val188 V0)).2).trans ?_
  rw [val188_main_arg0 V0, val188_main_v3 V0, val188_main_arg2 V0, val188_main_arg3 V0, val188_h V0, val188_y V0]
  rw [← hI_at (aX V0) (aA V0) (aB V0) 187 188 (by decide) rfl]
  exact (yJ_at (aX V0) (aA V0) (aB V0) (aC V0) 188 189 (by decide) rfl).symm
/-- The contents after step 189. -/
def val190 (V0 : Valuation τ sig (Elt Ideal)) : Valuation τ sig (Elt Ideal) := after (stepOps189 (F := Ideal)) (val189 V0)
theorem val190_main_arg0 (V0 : Valuation τ sig (Elt Ideal)) : val190 V0 (Proc.devRef .tc main_arg0) = aX V0 :=
  (after_keep _ 10 stepOps189_ok main_arg0 (by decide +kernel) (val189 V0)).trans (val189_main_arg0 V0)
theorem val190_main_arg1 (V0 : Valuation τ sig (Elt Ideal)) : val190 V0 (Proc.devRef .tc main_arg1) = aA V0 :=
  (after_keep _ 10 stepOps189_ok main_arg1 (by decide +kernel) (val189 V0)).trans (val189_main_arg1 V0)
theorem val190_main_arg2 (V0 : Valuation τ sig (Elt Ideal)) : val190 V0 (Proc.devRef .tc main_arg2) = aB V0 :=
  (after_keep _ 10 stepOps189_ok main_arg2 (by decide +kernel) (val189 V0)).trans (val189_main_arg2 V0)
theorem val190_main_arg3 (V0 : Valuation τ sig (Elt Ideal)) : val190 V0 (Proc.devRef .tc main_arg3) = aC V0 :=
  (after_keep _ 10 stepOps189_ok main_arg3 (by decide +kernel) (val189 V0)).trans (val189_main_arg3 V0)
theorem val190_main_v3 (V0 : Valuation τ sig (Elt Ideal)) : val190 V0 (Proc.devRef .tc main_v3) = decay (aA V0) :=
  (after_keep _ 10 stepOps189_ok main_v3 (by decide +kernel) (val189 V0)).trans (val189_main_v3 V0)
theorem val190_h (V0 : Valuation τ sig (Elt Ideal)) : val190 V0 (Proc.devRef .tc main_v3795) = hI (aX V0) (aA V0) (aB V0) 189 := by
  refine ((step189_val (val189 V0)).1).trans ?_
  rw [val189_main_arg0 V0, val189_main_v3 V0, val189_main_arg2 V0, val189_h V0]
  exact (hI_at (aX V0) (aA V0) (aB V0) 188 189 (by decide) rfl).symm
theorem val190_y (V0 : Valuation τ sig (Elt Ideal)) : val190 V0 (Proc.devRef .tc main_v3803) = yJ (aX V0) (aA V0) (aB V0) (aC V0) 190 := by
  refine ((step189_val (val189 V0)).2).trans ?_
  rw [val189_main_arg0 V0, val189_main_v3 V0, val189_main_arg2 V0, val189_main_arg3 V0, val189_h V0, val189_y V0]
  rw [← hI_at (aX V0) (aA V0) (aB V0) 188 189 (by decide) rfl]
  exact (yJ_at (aX V0) (aA V0) (aB V0) (aC V0) 189 190 (by decide) rfl).symm
/-- The contents after step 190. -/
def val191 (V0 : Valuation τ sig (Elt Ideal)) : Valuation τ sig (Elt Ideal) := after (stepOps190 (F := Ideal)) (val190 V0)
theorem val191_main_arg0 (V0 : Valuation τ sig (Elt Ideal)) : val191 V0 (Proc.devRef .tc main_arg0) = aX V0 :=
  (after_keep _ 10 stepOps190_ok main_arg0 (by decide +kernel) (val190 V0)).trans (val190_main_arg0 V0)
theorem val191_main_arg1 (V0 : Valuation τ sig (Elt Ideal)) : val191 V0 (Proc.devRef .tc main_arg1) = aA V0 :=
  (after_keep _ 10 stepOps190_ok main_arg1 (by decide +kernel) (val190 V0)).trans (val190_main_arg1 V0)
theorem val191_main_arg2 (V0 : Valuation τ sig (Elt Ideal)) : val191 V0 (Proc.devRef .tc main_arg2) = aB V0 :=
  (after_keep _ 10 stepOps190_ok main_arg2 (by decide +kernel) (val190 V0)).trans (val190_main_arg2 V0)
theorem val191_main_arg3 (V0 : Valuation τ sig (Elt Ideal)) : val191 V0 (Proc.devRef .tc main_arg3) = aC V0 :=
  (after_keep _ 10 stepOps190_ok main_arg3 (by decide +kernel) (val190 V0)).trans (val190_main_arg3 V0)
theorem val191_main_v3 (V0 : Valuation τ sig (Elt Ideal)) : val191 V0 (Proc.devRef .tc main_v3) = decay (aA V0) :=
  (after_keep _ 10 stepOps190_ok main_v3 (by decide +kernel) (val190 V0)).trans (val190_main_v3 V0)
theorem val191_h (V0 : Valuation τ sig (Elt Ideal)) : val191 V0 (Proc.devRef .tc main_v3815) = hI (aX V0) (aA V0) (aB V0) 190 := by
  refine ((step190_val (val190 V0)).1).trans ?_
  rw [val190_main_arg0 V0, val190_main_v3 V0, val190_main_arg2 V0, val190_h V0]
  exact (hI_at (aX V0) (aA V0) (aB V0) 189 190 (by decide) rfl).symm
theorem val191_y (V0 : Valuation τ sig (Elt Ideal)) : val191 V0 (Proc.devRef .tc main_v3823) = yJ (aX V0) (aA V0) (aB V0) (aC V0) 191 := by
  refine ((step190_val (val190 V0)).2).trans ?_
  rw [val190_main_arg0 V0, val190_main_v3 V0, val190_main_arg2 V0, val190_main_arg3 V0, val190_h V0, val190_y V0]
  rw [← hI_at (aX V0) (aA V0) (aB V0) 189 190 (by decide) rfl]
  exact (yJ_at (aX V0) (aA V0) (aB V0) (aC V0) 190 191 (by decide) rfl).symm
/-- The contents after step 191. -/
def val192 (V0 : Valuation τ sig (Elt Ideal)) : Valuation τ sig (Elt Ideal) := after (stepOps191 (F := Ideal)) (val191 V0)
theorem val192_main_arg0 (V0 : Valuation τ sig (Elt Ideal)) : val192 V0 (Proc.devRef .tc main_arg0) = aX V0 :=
  (after_keep _ 10 stepOps191_ok main_arg0 (by decide +kernel) (val191 V0)).trans (val191_main_arg0 V0)
theorem val192_main_arg1 (V0 : Valuation τ sig (Elt Ideal)) : val192 V0 (Proc.devRef .tc main_arg1) = aA V0 :=
  (after_keep _ 10 stepOps191_ok main_arg1 (by decide +kernel) (val191 V0)).trans (val191_main_arg1 V0)
theorem val192_main_arg2 (V0 : Valuation τ sig (Elt Ideal)) : val192 V0 (Proc.devRef .tc main_arg2) = aB V0 :=
  (after_keep _ 10 stepOps191_ok main_arg2 (by decide +kernel) (val191 V0)).trans (val191_main_arg2 V0)
theorem val192_main_arg3 (V0 : Valuation τ sig (Elt Ideal)) : val192 V0 (Proc.devRef .tc main_arg3) = aC V0 :=
  (after_keep _ 10 stepOps191_ok main_arg3 (by decide +kernel) (val191 V0)).trans (val191_main_arg3 V0)
theorem val192_main_v3 (V0 : Valuation τ sig (Elt Ideal)) : val192 V0 (Proc.devRef .tc main_v3) = decay (aA V0) :=
  (after_keep _ 10 stepOps191_ok main_v3 (by decide +kernel) (val191 V0)).trans (val191_main_v3 V0)
theorem val192_h (V0 : Valuation τ sig (Elt Ideal)) : val192 V0 (Proc.devRef .tc main_v3835) = hI (aX V0) (aA V0) (aB V0) 191 := by
  refine ((step191_val (val191 V0)).1).trans ?_
  rw [val191_main_arg0 V0, val191_main_v3 V0, val191_main_arg2 V0, val191_h V0]
  exact (hI_at (aX V0) (aA V0) (aB V0) 190 191 (by decide) rfl).symm
theorem val192_y (V0 : Valuation τ sig (Elt Ideal)) : val192 V0 (Proc.devRef .tc main_v3843) = yJ (aX V0) (aA V0) (aB V0) (aC V0) 192 := by
  refine ((step191_val (val191 V0)).2).trans ?_
  rw [val191_main_arg0 V0, val191_main_v3 V0, val191_main_arg2 V0, val191_main_arg3 V0, val191_h V0, val191_y V0]
  rw [← hI_at (aX V0) (aA V0) (aB V0) 190 191 (by decide) rfl]
  exact (yJ_at (aX V0) (aA V0) (aB V0) (aC V0) 191 192 (by decide) rfl).symm
/-- The contents after step 192. -/
def val193 (V0 : Valuation τ sig (Elt Ideal)) : Valuation τ sig (Elt Ideal) := after (stepOps192 (F := Ideal)) (val192 V0)
theorem val193_main_arg0 (V0 : Valuation τ sig (Elt Ideal)) : val193 V0 (Proc.devRef .tc main_arg0) = aX V0 :=
  (after_keep _ 10 stepOps192_ok main_arg0 (by decide +kernel) (val192 V0)).trans (val192_main_arg0 V0)
theorem val193_main_arg1 (V0 : Valuation τ sig (Elt Ideal)) : val193 V0 (Proc.devRef .tc main_arg1) = aA V0 :=
  (after_keep _ 10 stepOps192_ok main_arg1 (by decide +kernel) (val192 V0)).trans (val192_main_arg1 V0)
theorem val193_main_arg2 (V0 : Valuation τ sig (Elt Ideal)) : val193 V0 (Proc.devRef .tc main_arg2) = aB V0 :=
  (after_keep _ 10 stepOps192_ok main_arg2 (by decide +kernel) (val192 V0)).trans (val192_main_arg2 V0)
theorem val193_main_arg3 (V0 : Valuation τ sig (Elt Ideal)) : val193 V0 (Proc.devRef .tc main_arg3) = aC V0 :=
  (after_keep _ 10 stepOps192_ok main_arg3 (by decide +kernel) (val192 V0)).trans (val192_main_arg3 V0)
theorem val193_main_v3 (V0 : Valuation τ sig (Elt Ideal)) : val193 V0 (Proc.devRef .tc main_v3) = decay (aA V0) :=
  (after_keep _ 10 stepOps192_ok main_v3 (by decide +kernel) (val192 V0)).trans (val192_main_v3 V0)
theorem val193_h (V0 : Valuation τ sig (Elt Ideal)) : val193 V0 (Proc.devRef .tc main_v3855) = hI (aX V0) (aA V0) (aB V0) 192 := by
  refine ((step192_val (val192 V0)).1).trans ?_
  rw [val192_main_arg0 V0, val192_main_v3 V0, val192_main_arg2 V0, val192_h V0]
  exact (hI_at (aX V0) (aA V0) (aB V0) 191 192 (by decide) rfl).symm
theorem val193_y (V0 : Valuation τ sig (Elt Ideal)) : val193 V0 (Proc.devRef .tc main_v3863) = yJ (aX V0) (aA V0) (aB V0) (aC V0) 193 := by
  refine ((step192_val (val192 V0)).2).trans ?_
  rw [val192_main_arg0 V0, val192_main_v3 V0, val192_main_arg2 V0, val192_main_arg3 V0, val192_h V0, val192_y V0]
  rw [← hI_at (aX V0) (aA V0) (aB V0) 191 192 (by decide) rfl]
  exact (yJ_at (aX V0) (aA V0) (aB V0) (aC V0) 192 193 (by decide) rfl).symm
/-- The contents after step 193. -/
def val194 (V0 : Valuation τ sig (Elt Ideal)) : Valuation τ sig (Elt Ideal) := after (stepOps193 (F := Ideal)) (val193 V0)
theorem val194_main_arg0 (V0 : Valuation τ sig (Elt Ideal)) : val194 V0 (Proc.devRef .tc main_arg0) = aX V0 :=
  (after_keep _ 10 stepOps193_ok main_arg0 (by decide +kernel) (val193 V0)).trans (val193_main_arg0 V0)
theorem val194_main_arg1 (V0 : Valuation τ sig (Elt Ideal)) : val194 V0 (Proc.devRef .tc main_arg1) = aA V0 :=
  (after_keep _ 10 stepOps193_ok main_arg1 (by decide +kernel) (val193 V0)).trans (val193_main_arg1 V0)
theorem val194_main_arg2 (V0 : Valuation τ sig (Elt Ideal)) : val194 V0 (Proc.devRef .tc main_arg2) = aB V0 :=
  (after_keep _ 10 stepOps193_ok main_arg2 (by decide +kernel) (val193 V0)).trans (val193_main_arg2 V0)
theorem val194_main_arg3 (V0 : Valuation τ sig (Elt Ideal)) : val194 V0 (Proc.devRef .tc main_arg3) = aC V0 :=
  (after_keep _ 10 stepOps193_ok main_arg3 (by decide +kernel) (val193 V0)).trans (val193_main_arg3 V0)
theorem val194_main_v3 (V0 : Valuation τ sig (Elt Ideal)) : val194 V0 (Proc.devRef .tc main_v3) = decay (aA V0) :=
  (after_keep _ 10 stepOps193_ok main_v3 (by decide +kernel) (val193 V0)).trans (val193_main_v3 V0)
theorem val194_h (V0 : Valuation τ sig (Elt Ideal)) : val194 V0 (Proc.devRef .tc main_v3875) = hI (aX V0) (aA V0) (aB V0) 193 := by
  refine ((step193_val (val193 V0)).1).trans ?_
  rw [val193_main_arg0 V0, val193_main_v3 V0, val193_main_arg2 V0, val193_h V0]
  exact (hI_at (aX V0) (aA V0) (aB V0) 192 193 (by decide) rfl).symm
theorem val194_y (V0 : Valuation τ sig (Elt Ideal)) : val194 V0 (Proc.devRef .tc main_v3883) = yJ (aX V0) (aA V0) (aB V0) (aC V0) 194 := by
  refine ((step193_val (val193 V0)).2).trans ?_
  rw [val193_main_arg0 V0, val193_main_v3 V0, val193_main_arg2 V0, val193_main_arg3 V0, val193_h V0, val193_y V0]
  rw [← hI_at (aX V0) (aA V0) (aB V0) 192 193 (by decide) rfl]
  exact (yJ_at (aX V0) (aA V0) (aB V0) (aC V0) 193 194 (by decide) rfl).symm
/-- The contents after step 194. -/
def val195 (V0 : Valuation τ sig (Elt Ideal)) : Valuation τ sig (Elt Ideal) := after (stepOps194 (F := Ideal)) (val194 V0)
theorem val195_main_arg0 (V0 : Valuation τ sig (Elt Ideal)) : val195 V0 (Proc.devRef .tc main_arg0) = aX V0 :=
  (after_keep _ 10 stepOps194_ok main_arg0 (by decide +kernel) (val194 V0)).trans (val194_main_arg0 V0)
theorem val195_main_arg1 (V0 : Valuation τ sig (Elt Ideal)) : val195 V0 (Proc.devRef .tc main_arg1) = aA V0 :=
  (after_keep _ 10 stepOps194_ok main_arg1 (by decide +kernel) (val194 V0)).trans (val194_main_arg1 V0)
theorem val195_main_arg2 (V0 : Valuation τ sig (Elt Ideal)) : val195 V0 (Proc.devRef .tc main_arg2) = aB V0 :=
  (after_keep _ 10 stepOps194_ok main_arg2 (by decide +kernel) (val194 V0)).trans (val194_main_arg2 V0)
theorem val195_main_arg3 (V0 : Valuation τ sig (Elt Ideal)) : val195 V0 (Proc.devRef .tc main_arg3) = aC V0 :=
  (after_keep _ 10 stepOps194_ok main_arg3 (by decide +kernel) (val194 V0)).trans (val194_main_arg3 V0)
theorem val195_main_v3 (V0 : Valuation τ sig (Elt Ideal)) : val195 V0 (Proc.devRef .tc main_v3) = decay (aA V0) :=
  (after_keep _ 10 stepOps194_ok main_v3 (by decide +kernel) (val194 V0)).trans (val194_main_v3 V0)
theorem val195_h (V0 : Valuation τ sig (Elt Ideal)) : val195 V0 (Proc.devRef .tc main_v3895) = hI (aX V0) (aA V0) (aB V0) 194 := by
  refine ((step194_val (val194 V0)).1).trans ?_
  rw [val194_main_arg0 V0, val194_main_v3 V0, val194_main_arg2 V0, val194_h V0]
  exact (hI_at (aX V0) (aA V0) (aB V0) 193 194 (by decide) rfl).symm
theorem val195_y (V0 : Valuation τ sig (Elt Ideal)) : val195 V0 (Proc.devRef .tc main_v3903) = yJ (aX V0) (aA V0) (aB V0) (aC V0) 195 := by
  refine ((step194_val (val194 V0)).2).trans ?_
  rw [val194_main_arg0 V0, val194_main_v3 V0, val194_main_arg2 V0, val194_main_arg3 V0, val194_h V0, val194_y V0]
  rw [← hI_at (aX V0) (aA V0) (aB V0) 193 194 (by decide) rfl]
  exact (yJ_at (aX V0) (aA V0) (aB V0) (aC V0) 194 195 (by decide) rfl).symm
/-- The contents after step 195. -/
def val196 (V0 : Valuation τ sig (Elt Ideal)) : Valuation τ sig (Elt Ideal) := after (stepOps195 (F := Ideal)) (val195 V0)
theorem val196_main_arg0 (V0 : Valuation τ sig (Elt Ideal)) : val196 V0 (Proc.devRef .tc main_arg0) = aX V0 :=
  (after_keep _ 10 stepOps195_ok main_arg0 (by decide +kernel) (val195 V0)).trans (val195_main_arg0 V0)
theorem val196_main_arg1 (V0 : Valuation τ sig (Elt Ideal)) : val196 V0 (Proc.devRef .tc main_arg1) = aA V0 :=
  (after_keep _ 10 stepOps195_ok main_arg1 (by decide +kernel) (val195 V0)).trans (val195_main_arg1 V0)
theorem val196_main_arg2 (V0 : Valuation τ sig (Elt Ideal)) : val196 V0 (Proc.devRef .tc main_arg2) = aB V0 :=
  (after_keep _ 10 stepOps195_ok main_arg2 (by decide +kernel) (val195 V0)).trans (val195_main_arg2 V0)
theorem val196_main_arg3 (V0 : Valuation τ sig (Elt Ideal)) : val196 V0 (Proc.devRef .tc main_arg3) = aC V0 :=
  (after_keep _ 10 stepOps195_ok main_arg3 (by decide +kernel) (val195 V0)).trans (val195_main_arg3 V0)
theorem val196_main_v3 (V0 : Valuation τ sig (Elt Ideal)) : val196 V0 (Proc.devRef .tc main_v3) = decay (aA V0) :=
  (after_keep _ 10 stepOps195_ok main_v3 (by decide +kernel) (val195 V0)).trans (val195_main_v3 V0)
theorem val196_h (V0 : Valuation τ sig (Elt Ideal)) : val196 V0 (Proc.devRef .tc main_v3915) = hI (aX V0) (aA V0) (aB V0) 195 := by
  refine ((step195_val (val195 V0)).1).trans ?_
  rw [val195_main_arg0 V0, val195_main_v3 V0, val195_main_arg2 V0, val195_h V0]
  exact (hI_at (aX V0) (aA V0) (aB V0) 194 195 (by decide) rfl).symm
theorem val196_y (V0 : Valuation τ sig (Elt Ideal)) : val196 V0 (Proc.devRef .tc main_v3923) = yJ (aX V0) (aA V0) (aB V0) (aC V0) 196 := by
  refine ((step195_val (val195 V0)).2).trans ?_
  rw [val195_main_arg0 V0, val195_main_v3 V0, val195_main_arg2 V0, val195_main_arg3 V0, val195_h V0, val195_y V0]
  rw [← hI_at (aX V0) (aA V0) (aB V0) 194 195 (by decide) rfl]
  exact (yJ_at (aX V0) (aA V0) (aB V0) (aC V0) 195 196 (by decide) rfl).symm
/-- The contents after step 196. -/
def val197 (V0 : Valuation τ sig (Elt Ideal)) : Valuation τ sig (Elt Ideal) := after (stepOps196 (F := Ideal)) (val196 V0)
theorem val197_main_arg0 (V0 : Valuation τ sig (Elt Ideal)) : val197 V0 (Proc.devRef .tc main_arg0) = aX V0 :=
  (after_keep _ 10 stepOps196_ok main_arg0 (by decide +kernel) (val196 V0)).trans (val196_main_arg0 V0)
theorem val197_main_arg1 (V0 : Valuation τ sig (Elt Ideal)) : val197 V0 (Proc.devRef .tc main_arg1) = aA V0 :=
  (after_keep _ 10 stepOps196_ok main_arg1 (by decide +kernel) (val196 V0)).trans (val196_main_arg1 V0)
theorem val197_main_arg2 (V0 : Valuation τ sig (Elt Ideal)) : val197 V0 (Proc.devRef .tc main_arg2) = aB V0 :=
  (after_keep _ 10 stepOps196_ok main_arg2 (by decide +kernel) (val196 V0)).trans (val196_main_arg2 V0)
theorem val197_main_arg3 (V0 : Valuation τ sig (Elt Ideal)) : val197 V0 (Proc.devRef .tc main_arg3) = aC V0 :=
  (after_keep _ 10 stepOps196_ok main_arg3 (by decide +kernel) (val196 V0)).trans (val196_main_arg3 V0)
theorem val197_main_v3 (V0 : Valuation τ sig (Elt Ideal)) : val197 V0 (Proc.devRef .tc main_v3) = decay (aA V0) :=
  (after_keep _ 10 stepOps196_ok main_v3 (by decide +kernel) (val196 V0)).trans (val196_main_v3 V0)
theorem val197_h (V0 : Valuation τ sig (Elt Ideal)) : val197 V0 (Proc.devRef .tc main_v3935) = hI (aX V0) (aA V0) (aB V0) 196 := by
  refine ((step196_val (val196 V0)).1).trans ?_
  rw [val196_main_arg0 V0, val196_main_v3 V0, val196_main_arg2 V0, val196_h V0]
  exact (hI_at (aX V0) (aA V0) (aB V0) 195 196 (by decide) rfl).symm
theorem val197_y (V0 : Valuation τ sig (Elt Ideal)) : val197 V0 (Proc.devRef .tc main_v3943) = yJ (aX V0) (aA V0) (aB V0) (aC V0) 197 := by
  refine ((step196_val (val196 V0)).2).trans ?_
  rw [val196_main_arg0 V0, val196_main_v3 V0, val196_main_arg2 V0, val196_main_arg3 V0, val196_h V0, val196_y V0]
  rw [← hI_at (aX V0) (aA V0) (aB V0) 195 196 (by decide) rfl]
  exact (yJ_at (aX V0) (aA V0) (aB V0) (aC V0) 196 197 (by decide) rfl).symm
/-- The contents after step 197. -/
def val198 (V0 : Valuation τ sig (Elt Ideal)) : Valuation τ sig (Elt Ideal) := after (stepOps197 (F := Ideal)) (val197 V0)
theorem val198_main_arg0 (V0 : Valuation τ sig (Elt Ideal)) : val198 V0 (Proc.devRef .tc main_arg0) = aX V0 :=
  (after_keep _ 10 stepOps197_ok main_arg0 (by decide +kernel) (val197 V0)).trans (val197_main_arg0 V0)
theorem val198_main_arg1 (V0 : Valuation τ sig (Elt Ideal)) : val198 V0 (Proc.devRef .tc main_arg1) = aA V0 :=
  (after_keep _ 10 stepOps197_ok main_arg1 (by decide +kernel) (val197 V0)).trans (val197_main_arg1 V0)
theorem val198_main_arg2 (V0 : Valuation τ sig (Elt Ideal)) : val198 V0 (Proc.devRef .tc main_arg2) = aB V0 :=
  (after_keep _ 10 stepOps197_ok main_arg2 (by decide +kernel) (val197 V0)).trans (val197_main_arg2 V0)
theorem val198_main_arg3 (V0 : Valuation τ sig (Elt Ideal)) : val198 V0 (Proc.devRef .tc main_arg3) = aC V0 :=
  (after_keep _ 10 stepOps197_ok main_arg3 (by decide +kernel) (val197 V0)).trans (val197_main_arg3 V0)
theorem val198_main_v3 (V0 : Valuation τ sig (Elt Ideal)) : val198 V0 (Proc.devRef .tc main_v3) = decay (aA V0) :=
  (after_keep _ 10 stepOps197_ok main_v3 (by decide +kernel) (val197 V0)).trans (val197_main_v3 V0)
theorem val198_h (V0 : Valuation τ sig (Elt Ideal)) : val198 V0 (Proc.devRef .tc main_v3955) = hI (aX V0) (aA V0) (aB V0) 197 := by
  refine ((step197_val (val197 V0)).1).trans ?_
  rw [val197_main_arg0 V0, val197_main_v3 V0, val197_main_arg2 V0, val197_h V0]
  exact (hI_at (aX V0) (aA V0) (aB V0) 196 197 (by decide) rfl).symm
theorem val198_y (V0 : Valuation τ sig (Elt Ideal)) : val198 V0 (Proc.devRef .tc main_v3963) = yJ (aX V0) (aA V0) (aB V0) (aC V0) 198 := by
  refine ((step197_val (val197 V0)).2).trans ?_
  rw [val197_main_arg0 V0, val197_main_v3 V0, val197_main_arg2 V0, val197_main_arg3 V0, val197_h V0, val197_y V0]
  rw [← hI_at (aX V0) (aA V0) (aB V0) 196 197 (by decide) rfl]
  exact (yJ_at (aX V0) (aA V0) (aB V0) (aC V0) 197 198 (by decide) rfl).symm
/-- The contents after step 198. -/
def val199 (V0 : Valuation τ sig (Elt Ideal)) : Valuation τ sig (Elt Ideal) := after (stepOps198 (F := Ideal)) (val198 V0)
theorem val199_main_arg0 (V0 : Valuation τ sig (Elt Ideal)) : val199 V0 (Proc.devRef .tc main_arg0) = aX V0 :=
  (after_keep _ 10 stepOps198_ok main_arg0 (by decide +kernel) (val198 V0)).trans (val198_main_arg0 V0)
theorem val199_main_arg1 (V0 : Valuation τ sig (Elt Ideal)) : val199 V0 (Proc.devRef .tc main_arg1) = aA V0 :=
  (after_keep _ 10 stepOps198_ok main_arg1 (by decide +kernel) (val198 V0)).trans (val198_main_arg1 V0)
theorem val199_main_arg2 (V0 : Valuation τ sig (Elt Ideal)) : val199 V0 (Proc.devRef .tc main_arg2) = aB V0 :=
  (after_keep _ 10 stepOps198_ok main_arg2 (by decide +kernel) (val198 V0)).trans (val198_main_arg2 V0)
theorem val199_main_arg3 (V0 : Valuation τ sig (Elt Ideal)) : val199 V0 (Proc.devRef .tc main_arg3) = aC V0 :=
  (after_keep _ 10 stepOps198_ok main_arg3 (by decide +kernel) (val198 V0)).trans (val198_main_arg3 V0)
theorem val199_main_v3 (V0 : Valuation τ sig (Elt Ideal)) : val199 V0 (Proc.devRef .tc main_v3) = decay (aA V0) :=
  (after_keep _ 10 stepOps198_ok main_v3 (by decide +kernel) (val198 V0)).trans (val198_main_v3 V0)
theorem val199_h (V0 : Valuation τ sig (Elt Ideal)) : val199 V0 (Proc.devRef .tc main_v3975) = hI (aX V0) (aA V0) (aB V0) 198 := by
  refine ((step198_val (val198 V0)).1).trans ?_
  rw [val198_main_arg0 V0, val198_main_v3 V0, val198_main_arg2 V0, val198_h V0]
  exact (hI_at (aX V0) (aA V0) (aB V0) 197 198 (by decide) rfl).symm
theorem val199_y (V0 : Valuation τ sig (Elt Ideal)) : val199 V0 (Proc.devRef .tc main_v3983) = yJ (aX V0) (aA V0) (aB V0) (aC V0) 199 := by
  refine ((step198_val (val198 V0)).2).trans ?_
  rw [val198_main_arg0 V0, val198_main_v3 V0, val198_main_arg2 V0, val198_main_arg3 V0, val198_h V0, val198_y V0]
  rw [← hI_at (aX V0) (aA V0) (aB V0) 197 198 (by decide) rfl]
  exact (yJ_at (aX V0) (aA V0) (aB V0) (aC V0) 198 199 (by decide) rfl).symm
/-- The contents after step 199. -/
def val200 (V0 : Valuation τ sig (Elt Ideal)) : Valuation τ sig (Elt Ideal) := after (stepOps199 (F := Ideal)) (val199 V0)
theorem val200_main_arg0 (V0 : Valuation τ sig (Elt Ideal)) : val200 V0 (Proc.devRef .tc main_arg0) = aX V0 :=
  (after_keep _ 10 stepOps199_ok main_arg0 (by decide +kernel) (val199 V0)).trans (val199_main_arg0 V0)
theorem val200_main_arg1 (V0 : Valuation τ sig (Elt Ideal)) : val200 V0 (Proc.devRef .tc main_arg1) = aA V0 :=
  (after_keep _ 10 stepOps199_ok main_arg1 (by decide +kernel) (val199 V0)).trans (val199_main_arg1 V0)
theorem val200_main_arg2 (V0 : Valuation τ sig (Elt Ideal)) : val200 V0 (Proc.devRef .tc main_arg2) = aB V0 :=
  (after_keep _ 10 stepOps199_ok main_arg2 (by decide +kernel) (val199 V0)).trans (val199_main_arg2 V0)
theorem val200_main_arg3 (V0 : Valuation τ sig (Elt Ideal)) : val200 V0 (Proc.devRef .tc main_arg3) = aC V0 :=
  (after_keep _ 10 stepOps199_ok main_arg3 (by decide +kernel) (val199 V0)).trans (val199_main_arg3 V0)
theorem val200_main_v3 (V0 : Valuation τ sig (Elt Ideal)) : val200 V0 (Proc.devRef .tc main_v3) = decay (aA V0) :=
  (after_keep _ 10 stepOps199_ok main_v3 (by decide +kernel) (val199 V0)).trans (val199_main_v3 V0)
theorem val200_h (V0 : Valuation τ sig (Elt Ideal)) : val200 V0 (Proc.devRef .tc main_v3995) = hI (aX V0) (aA V0) (aB V0) 199 := by
  refine ((step199_val (val199 V0)).1).trans ?_
  rw [val199_main_arg0 V0, val199_main_v3 V0, val199_main_arg2 V0, val199_h V0]
  exact (hI_at (aX V0) (aA V0) (aB V0) 198 199 (by decide) rfl).symm
theorem val200_y (V0 : Valuation τ sig (Elt Ideal)) : val200 V0 (Proc.devRef .tc main_v4003) = yJ (aX V0) (aA V0) (aB V0) (aC V0) 200 := by
  refine ((step199_val (val199 V0)).2).trans ?_
  rw [val199_main_arg0 V0, val199_main_v3 V0, val199_main_arg2 V0, val199_main_arg3 V0, val199_h V0, val199_y V0]
  rw [← hI_at (aX V0) (aA V0) (aB V0) 198 199 (by decide) rfl]
  exact (yJ_at (aX V0) (aA V0) (aB V0) (aC V0) 199 200 (by decide) rfl).symm
/-- The contents after step 200. -/
def val201 (V0 : Valuation τ sig (Elt Ideal)) : Valuation τ sig (Elt Ideal) := after (stepOps200 (F := Ideal)) (val200 V0)
theorem val201_main_arg0 (V0 : Valuation τ sig (Elt Ideal)) : val201 V0 (Proc.devRef .tc main_arg0) = aX V0 :=
  (after_keep _ 10 stepOps200_ok main_arg0 (by decide +kernel) (val200 V0)).trans (val200_main_arg0 V0)
theorem val201_main_arg1 (V0 : Valuation τ sig (Elt Ideal)) : val201 V0 (Proc.devRef .tc main_arg1) = aA V0 :=
  (after_keep _ 10 stepOps200_ok main_arg1 (by decide +kernel) (val200 V0)).trans (val200_main_arg1 V0)
theorem val201_main_arg2 (V0 : Valuation τ sig (Elt Ideal)) : val201 V0 (Proc.devRef .tc main_arg2) = aB V0 :=
  (after_keep _ 10 stepOps200_ok main_arg2 (by decide +kernel) (val200 V0)).trans (val200_main_arg2 V0)
theorem val201_main_arg3 (V0 : Valuation τ sig (Elt Ideal)) : val201 V0 (Proc.devRef .tc main_arg3) = aC V0 :=
  (after_keep _ 10 stepOps200_ok main_arg3 (by decide +kernel) (val200 V0)).trans (val200_main_arg3 V0)
theorem val201_main_v3 (V0 : Valuation τ sig (Elt Ideal)) : val201 V0 (Proc.devRef .tc main_v3) = decay (aA V0) :=
  (after_keep _ 10 stepOps200_ok main_v3 (by decide +kernel) (val200 V0)).trans (val200_main_v3 V0)
theorem val201_h (V0 : Valuation τ sig (Elt Ideal)) : val201 V0 (Proc.devRef .tc main_v4015) = hI (aX V0) (aA V0) (aB V0) 200 := by
  refine ((step200_val (val200 V0)).1).trans ?_
  rw [val200_main_arg0 V0, val200_main_v3 V0, val200_main_arg2 V0, val200_h V0]
  exact (hI_at (aX V0) (aA V0) (aB V0) 199 200 (by decide) rfl).symm
theorem val201_y (V0 : Valuation τ sig (Elt Ideal)) : val201 V0 (Proc.devRef .tc main_v4023) = yJ (aX V0) (aA V0) (aB V0) (aC V0) 201 := by
  refine ((step200_val (val200 V0)).2).trans ?_
  rw [val200_main_arg0 V0, val200_main_v3 V0, val200_main_arg2 V0, val200_main_arg3 V0, val200_h V0, val200_y V0]
  rw [← hI_at (aX V0) (aA V0) (aB V0) 199 200 (by decide) rfl]
  exact (yJ_at (aX V0) (aA V0) (aB V0) (aC V0) 200 201 (by decide) rfl).symm
/-- The contents after step 201. -/
def val202 (V0 : Valuation τ sig (Elt Ideal)) : Valuation τ sig (Elt Ideal) := after (stepOps201 (F := Ideal)) (val201 V0)
theorem val202_main_arg0 (V0 : Valuation τ sig (Elt Ideal)) : val202 V0 (Proc.devRef .tc main_arg0) = aX V0 :=
  (after_keep _ 10 stepOps201_ok main_arg0 (by decide +kernel) (val201 V0)).trans (val201_main_arg0 V0)
theorem val202_main_arg1 (V0 : Valuation τ sig (Elt Ideal)) : val202 V0 (Proc.devRef .tc main_arg1) = aA V0 :=
  (after_keep _ 10 stepOps201_ok main_arg1 (by decide +kernel) (val201 V0)).trans (val201_main_arg1 V0)
theorem val202_main_arg2 (V0 : Valuation τ sig (Elt Ideal)) : val202 V0 (Proc.devRef .tc main_arg2) = aB V0 :=
  (after_keep _ 10 stepOps201_ok main_arg2 (by decide +kernel) (val201 V0)).trans (val201_main_arg2 V0)
theorem val202_main_arg3 (V0 : Valuation τ sig (Elt Ideal)) : val202 V0 (Proc.devRef .tc main_arg3) = aC V0 :=
  (after_keep _ 10 stepOps201_ok main_arg3 (by decide +kernel) (val201 V0)).trans (val201_main_arg3 V0)
theorem val202_main_v3 (V0 : Valuation τ sig (Elt Ideal)) : val202 V0 (Proc.devRef .tc main_v3) = decay (aA V0) :=
  (after_keep _ 10 stepOps201_ok main_v3 (by decide +kernel) (val201 V0)).trans (val201_main_v3 V0)
theorem val202_h (V0 : Valuation τ sig (Elt Ideal)) : val202 V0 (Proc.devRef .tc main_v4035) = hI (aX V0) (aA V0) (aB V0) 201 := by
  refine ((step201_val (val201 V0)).1).trans ?_
  rw [val201_main_arg0 V0, val201_main_v3 V0, val201_main_arg2 V0, val201_h V0]
  exact (hI_at (aX V0) (aA V0) (aB V0) 200 201 (by decide) rfl).symm
theorem val202_y (V0 : Valuation τ sig (Elt Ideal)) : val202 V0 (Proc.devRef .tc main_v4043) = yJ (aX V0) (aA V0) (aB V0) (aC V0) 202 := by
  refine ((step201_val (val201 V0)).2).trans ?_
  rw [val201_main_arg0 V0, val201_main_v3 V0, val201_main_arg2 V0, val201_main_arg3 V0, val201_h V0, val201_y V0]
  rw [← hI_at (aX V0) (aA V0) (aB V0) 200 201 (by decide) rfl]
  exact (yJ_at (aX V0) (aA V0) (aB V0) (aC V0) 201 202 (by decide) rfl).symm
/-- The contents after step 202. -/
def val203 (V0 : Valuation τ sig (Elt Ideal)) : Valuation τ sig (Elt Ideal) := after (stepOps202 (F := Ideal)) (val202 V0)
theorem val203_main_arg0 (V0 : Valuation τ sig (Elt Ideal)) : val203 V0 (Proc.devRef .tc main_arg0) = aX V0 :=
  (after_keep _ 10 stepOps202_ok main_arg0 (by decide +kernel) (val202 V0)).trans (val202_main_arg0 V0)
theorem val203_main_arg1 (V0 : Valuation τ sig (Elt Ideal)) : val203 V0 (Proc.devRef .tc main_arg1) = aA V0 :=
  (after_keep _ 10 stepOps202_ok main_arg1 (by decide +kernel) (val202 V0)).trans (val202_main_arg1 V0)
theorem val203_main_arg2 (V0 : Valuation τ sig (Elt Ideal)) : val203 V0 (Proc.devRef .tc main_arg2) = aB V0 :=
  (after_keep _ 10 stepOps202_ok main_arg2 (by decide +kernel) (val202 V0)).trans (val202_main_arg2 V0)
theorem val203_main_arg3 (V0 : Valuation τ sig (Elt Ideal)) : val203 V0 (Proc.devRef .tc main_arg3) = aC V0 :=
  (after_keep _ 10 stepOps202_ok main_arg3 (by decide +kernel) (val202 V0)).trans (val202_main_arg3 V0)
theorem val203_main_v3 (V0 : Valuation τ sig (Elt Ideal)) : val203 V0 (Proc.devRef .tc main_v3) = decay (aA V0) :=
  (after_keep _ 10 stepOps202_ok main_v3 (by decide +kernel) (val202 V0)).trans (val202_main_v3 V0)
theorem val203_h (V0 : Valuation τ sig (Elt Ideal)) : val203 V0 (Proc.devRef .tc main_v4055) = hI (aX V0) (aA V0) (aB V0) 202 := by
  refine ((step202_val (val202 V0)).1).trans ?_
  rw [val202_main_arg0 V0, val202_main_v3 V0, val202_main_arg2 V0, val202_h V0]
  exact (hI_at (aX V0) (aA V0) (aB V0) 201 202 (by decide) rfl).symm
theorem val203_y (V0 : Valuation τ sig (Elt Ideal)) : val203 V0 (Proc.devRef .tc main_v4063) = yJ (aX V0) (aA V0) (aB V0) (aC V0) 203 := by
  refine ((step202_val (val202 V0)).2).trans ?_
  rw [val202_main_arg0 V0, val202_main_v3 V0, val202_main_arg2 V0, val202_main_arg3 V0, val202_h V0, val202_y V0]
  rw [← hI_at (aX V0) (aA V0) (aB V0) 201 202 (by decide) rfl]
  exact (yJ_at (aX V0) (aA V0) (aB V0) (aC V0) 202 203 (by decide) rfl).symm
/-- The contents after step 203. -/
def val204 (V0 : Valuation τ sig (Elt Ideal)) : Valuation τ sig (Elt Ideal) := after (stepOps203 (F := Ideal)) (val203 V0)
theorem val204_main_arg0 (V0 : Valuation τ sig (Elt Ideal)) : val204 V0 (Proc.devRef .tc main_arg0) = aX V0 :=
  (after_keep _ 10 stepOps203_ok main_arg0 (by decide +kernel) (val203 V0)).trans (val203_main_arg0 V0)
theorem val204_main_arg1 (V0 : Valuation τ sig (Elt Ideal)) : val204 V0 (Proc.devRef .tc main_arg1) = aA V0 :=
  (after_keep _ 10 stepOps203_ok main_arg1 (by decide +kernel) (val203 V0)).trans (val203_main_arg1 V0)
theorem val204_main_arg2 (V0 : Valuation τ sig (Elt Ideal)) : val204 V0 (Proc.devRef .tc main_arg2) = aB V0 :=
  (after_keep _ 10 stepOps203_ok main_arg2 (by decide +kernel) (val203 V0)).trans (val203_main_arg2 V0)
theorem val204_main_arg3 (V0 : Valuation τ sig (Elt Ideal)) : val204 V0 (Proc.devRef .tc main_arg3) = aC V0 :=
  (after_keep _ 10 stepOps203_ok main_arg3 (by decide +kernel) (val203 V0)).trans (val203_main_arg3 V0)
theorem val204_main_v3 (V0 : Valuation τ sig (Elt Ideal)) : val204 V0 (Proc.devRef .tc main_v3) = decay (aA V0) :=
  (after_keep _ 10 stepOps203_ok main_v3 (by decide +kernel) (val203 V0)).trans (val203_main_v3 V0)
theorem val204_h (V0 : Valuation τ sig (Elt Ideal)) : val204 V0 (Proc.devRef .tc main_v4075) = hI (aX V0) (aA V0) (aB V0) 203 := by
  refine ((step203_val (val203 V0)).1).trans ?_
  rw [val203_main_arg0 V0, val203_main_v3 V0, val203_main_arg2 V0, val203_h V0]
  exact (hI_at (aX V0) (aA V0) (aB V0) 202 203 (by decide) rfl).symm
theorem val204_y (V0 : Valuation τ sig (Elt Ideal)) : val204 V0 (Proc.devRef .tc main_v4083) = yJ (aX V0) (aA V0) (aB V0) (aC V0) 204 := by
  refine ((step203_val (val203 V0)).2).trans ?_
  rw [val203_main_arg0 V0, val203_main_v3 V0, val203_main_arg2 V0, val203_main_arg3 V0, val203_h V0, val203_y V0]
  rw [← hI_at (aX V0) (aA V0) (aB V0) 202 203 (by decide) rfl]
  exact (yJ_at (aX V0) (aA V0) (aB V0) (aC V0) 203 204 (by decide) rfl).symm
/-- The contents after step 204. -/
def val205 (V0 : Valuation τ sig (Elt Ideal)) : Valuation τ sig (Elt Ideal) := after (stepOps204 (F := Ideal)) (val204 V0)
theorem val205_main_arg0 (V0 : Valuation τ sig (Elt Ideal)) : val205 V0 (Proc.devRef .tc main_arg0) = aX V0 :=
  (after_keep _ 10 stepOps204_ok main_arg0 (by decide +kernel) (val204 V0)).trans (val204_main_arg0 V0)
theorem val205_main_arg1 (V0 : Valuation τ sig (Elt Ideal)) : val205 V0 (Proc.devRef .tc main_arg1) = aA V0 :=
  (after_keep _ 10 stepOps204_ok main_arg1 (by decide +kernel) (val204 V0)).trans (val204_main_arg1 V0)
theorem val205_main_arg2 (V0 : Valuation τ sig (Elt Ideal)) : val205 V0 (Proc.devRef .tc main_arg2) = aB V0 :=
  (after_keep _ 10 stepOps204_ok main_arg2 (by decide +kernel) (val204 V0)).trans (val204_main_arg2 V0)
theorem val205_main_arg3 (V0 : Valuation τ sig (Elt Ideal)) : val205 V0 (Proc.devRef .tc main_arg3) = aC V0 :=
  (after_keep _ 10 stepOps204_ok main_arg3 (by decide +kernel) (val204 V0)).trans (val204_main_arg3 V0)
theorem val205_main_v3 (V0 : Valuation τ sig (Elt Ideal)) : val205 V0 (Proc.devRef .tc main_v3) = decay (aA V0) :=
  (after_keep _ 10 stepOps204_ok main_v3 (by decide +kernel) (val204 V0)).trans (val204_main_v3 V0)
theorem val205_h (V0 : Valuation τ sig (Elt Ideal)) : val205 V0 (Proc.devRef .tc main_v4095) = hI (aX V0) (aA V0) (aB V0) 204 := by
  refine ((step204_val (val204 V0)).1).trans ?_
  rw [val204_main_arg0 V0, val204_main_v3 V0, val204_main_arg2 V0, val204_h V0]
  exact (hI_at (aX V0) (aA V0) (aB V0) 203 204 (by decide) rfl).symm
theorem val205_y (V0 : Valuation τ sig (Elt Ideal)) : val205 V0 (Proc.devRef .tc main_v4103) = yJ (aX V0) (aA V0) (aB V0) (aC V0) 205 := by
  refine ((step204_val (val204 V0)).2).trans ?_
  rw [val204_main_arg0 V0, val204_main_v3 V0, val204_main_arg2 V0, val204_main_arg3 V0, val204_h V0, val204_y V0]
  rw [← hI_at (aX V0) (aA V0) (aB V0) 203 204 (by decide) rfl]
  exact (yJ_at (aX V0) (aA V0) (aB V0) (aC V0) 204 205 (by decide) rfl).symm
/-- The contents after step 205. -/
def val206 (V0 : Valuation τ sig (Elt Ideal)) : Valuation τ sig (Elt Ideal) := after (stepOps205 (F := Ideal)) (val205 V0)
theorem val206_main_arg0 (V0 : Valuation τ sig (Elt Ideal)) : val206 V0 (Proc.devRef .tc main_arg0) = aX V0 :=
  (after_keep _ 10 stepOps205_ok main_arg0 (by decide +kernel) (val205 V0)).trans (val205_main_arg0 V0)
theorem val206_main_arg1 (V0 : Valuation τ sig (Elt Ideal)) : val206 V0 (Proc.devRef .tc main_arg1) = aA V0 :=
  (after_keep _ 10 stepOps205_ok main_arg1 (by decide +kernel) (val205 V0)).trans (val205_main_arg1 V0)
theorem val206_main_arg2 (V0 : Valuation τ sig (Elt Ideal)) : val206 V0 (Proc.devRef .tc main_arg2) = aB V0 :=
  (after_keep _ 10 stepOps205_ok main_arg2 (by decide +kernel) (val205 V0)).trans (val205_main_arg2 V0)
theorem val206_main_arg3 (V0 : Valuation τ sig (Elt Ideal)) : val206 V0 (Proc.devRef .tc main_arg3) = aC V0 :=
  (after_keep _ 10 stepOps205_ok main_arg3 (by decide +kernel) (val205 V0)).trans (val205_main_arg3 V0)
theorem val206_main_v3 (V0 : Valuation τ sig (Elt Ideal)) : val206 V0 (Proc.devRef .tc main_v3) = decay (aA V0) :=
  (after_keep _ 10 stepOps205_ok main_v3 (by decide +kernel) (val205 V0)).trans (val205_main_v3 V0)
theorem val206_h (V0 : Valuation τ sig (Elt Ideal)) : val206 V0 (Proc.devRef .tc main_v4115) = hI (aX V0) (aA V0) (aB V0) 205 := by
  refine ((step205_val (val205 V0)).1).trans ?_
  rw [val205_main_arg0 V0, val205_main_v3 V0, val205_main_arg2 V0, val205_h V0]
  exact (hI_at (aX V0) (aA V0) (aB V0) 204 205 (by decide) rfl).symm
theorem val206_y (V0 : Valuation τ sig (Elt Ideal)) : val206 V0 (Proc.devRef .tc main_v4123) = yJ (aX V0) (aA V0) (aB V0) (aC V0) 206 := by
  refine ((step205_val (val205 V0)).2).trans ?_
  rw [val205_main_arg0 V0, val205_main_v3 V0, val205_main_arg2 V0, val205_main_arg3 V0, val205_h V0, val205_y V0]
  rw [← hI_at (aX V0) (aA V0) (aB V0) 204 205 (by decide) rfl]
  exact (yJ_at (aX V0) (aA V0) (aB V0) (aC V0) 205 206 (by decide) rfl).symm
/-- The contents after step 206. -/
def val207 (V0 : Valuation τ sig (Elt Ideal)) : Valuation τ sig (Elt Ideal) := after (stepOps206 (F := Ideal)) (val206 V0)
theorem val207_main_arg0 (V0 : Valuation τ sig (Elt Ideal)) : val207 V0 (Proc.devRef .tc main_arg0) = aX V0 :=
  (after_keep _ 10 stepOps206_ok main_arg0 (by decide +kernel) (val206 V0)).trans (val206_main_arg0 V0)
theorem val207_main_arg1 (V0 : Valuation τ sig (Elt Ideal)) : val207 V0 (Proc.devRef .tc main_arg1) = aA V0 :=
  (after_keep _ 10 stepOps206_ok main_arg1 (by decide +kernel) (val206 V0)).trans (val206_main_arg1 V0)
theorem val207_main_arg2 (V0 : Valuation τ sig (Elt Ideal)) : val207 V0 (Proc.devRef .tc main_arg2) = aB V0 :=
  (after_keep _ 10 stepOps206_ok main_arg2 (by decide +kernel) (val206 V0)).trans (val206_main_arg2 V0)
theorem val207_main_arg3 (V0 : Valuation τ sig (Elt Ideal)) : val207 V0 (Proc.devRef .tc main_arg3) = aC V0 :=
  (after_keep _ 10 stepOps206_ok main_arg3 (by decide +kernel) (val206 V0)).trans (val206_main_arg3 V0)
theorem val207_main_v3 (V0 : Valuation τ sig (Elt Ideal)) : val207 V0 (Proc.devRef .tc main_v3) = decay (aA V0) :=
  (after_keep _ 10 stepOps206_ok main_v3 (by decide +kernel) (val206 V0)).trans (val206_main_v3 V0)
theorem val207_h (V0 : Valuation τ sig (Elt Ideal)) : val207 V0 (Proc.devRef .tc main_v4135) = hI (aX V0) (aA V0) (aB V0) 206 := by
  refine ((step206_val (val206 V0)).1).trans ?_
  rw [val206_main_arg0 V0, val206_main_v3 V0, val206_main_arg2 V0, val206_h V0]
  exact (hI_at (aX V0) (aA V0) (aB V0) 205 206 (by decide) rfl).symm
theorem val207_y (V0 : Valuation τ sig (Elt Ideal)) : val207 V0 (Proc.devRef .tc main_v4143) = yJ (aX V0) (aA V0) (aB V0) (aC V0) 207 := by
  refine ((step206_val (val206 V0)).2).trans ?_
  rw [val206_main_arg0 V0, val206_main_v3 V0, val206_main_arg2 V0, val206_main_arg3 V0, val206_h V0, val206_y V0]
  rw [← hI_at (aX V0) (aA V0) (aB V0) 205 206 (by decide) rfl]
  exact (yJ_at (aX V0) (aA V0) (aB V0) (aC V0) 206 207 (by decide) rfl).symm
/-- The contents after step 207. -/
def val208 (V0 : Valuation τ sig (Elt Ideal)) : Valuation τ sig (Elt Ideal) := after (stepOps207 (F := Ideal)) (val207 V0)
theorem val208_main_arg0 (V0 : Valuation τ sig (Elt Ideal)) : val208 V0 (Proc.devRef .tc main_arg0) = aX V0 :=
  (after_keep _ 10 stepOps207_ok main_arg0 (by decide +kernel) (val207 V0)).trans (val207_main_arg0 V0)
theorem val208_main_arg1 (V0 : Valuation τ sig (Elt Ideal)) : val208 V0 (Proc.devRef .tc main_arg1) = aA V0 :=
  (after_keep _ 10 stepOps207_ok main_arg1 (by decide +kernel) (val207 V0)).trans (val207_main_arg1 V0)
theorem val208_main_arg2 (V0 : Valuation τ sig (Elt Ideal)) : val208 V0 (Proc.devRef .tc main_arg2) = aB V0 :=
  (after_keep _ 10 stepOps207_ok main_arg2 (by decide +kernel) (val207 V0)).trans (val207_main_arg2 V0)
theorem val208_main_arg3 (V0 : Valuation τ sig (Elt Ideal)) : val208 V0 (Proc.devRef .tc main_arg3) = aC V0 :=
  (after_keep _ 10 stepOps207_ok main_arg3 (by decide +kernel) (val207 V0)).trans (val207_main_arg3 V0)
theorem val208_main_v3 (V0 : Valuation τ sig (Elt Ideal)) : val208 V0 (Proc.devRef .tc main_v3) = decay (aA V0) :=
  (after_keep _ 10 stepOps207_ok main_v3 (by decide +kernel) (val207 V0)).trans (val207_main_v3 V0)
theorem val208_h (V0 : Valuation τ sig (Elt Ideal)) : val208 V0 (Proc.devRef .tc main_v4155) = hI (aX V0) (aA V0) (aB V0) 207 := by
  refine ((step207_val (val207 V0)).1).trans ?_
  rw [val207_main_arg0 V0, val207_main_v3 V0, val207_main_arg2 V0, val207_h V0]
  exact (hI_at (aX V0) (aA V0) (aB V0) 206 207 (by decide) rfl).symm
theorem val208_y (V0 : Valuation τ sig (Elt Ideal)) : val208 V0 (Proc.devRef .tc main_v4163) = yJ (aX V0) (aA V0) (aB V0) (aC V0) 208 := by
  refine ((step207_val (val207 V0)).2).trans ?_
  rw [val207_main_arg0 V0, val207_main_v3 V0, val207_main_arg2 V0, val207_main_arg3 V0, val207_h V0, val207_y V0]
  rw [← hI_at (aX V0) (aA V0) (aB V0) 206 207 (by decide) rfl]
  exact (yJ_at (aX V0) (aA V0) (aB V0) (aC V0) 207 208 (by decide) rfl).symm
/-- The contents after step 208. -/
def val209 (V0 : Valuation τ sig (Elt Ideal)) : Valuation τ sig (Elt Ideal) := after (stepOps208 (F := Ideal)) (val208 V0)
theorem val209_main_arg0 (V0 : Valuation τ sig (Elt Ideal)) : val209 V0 (Proc.devRef .tc main_arg0) = aX V0 :=
  (after_keep _ 10 stepOps208_ok main_arg0 (by decide +kernel) (val208 V0)).trans (val208_main_arg0 V0)
theorem val209_main_arg1 (V0 : Valuation τ sig (Elt Ideal)) : val209 V0 (Proc.devRef .tc main_arg1) = aA V0 :=
  (after_keep _ 10 stepOps208_ok main_arg1 (by decide +kernel) (val208 V0)).trans (val208_main_arg1 V0)
theorem val209_main_arg2 (V0 : Valuation τ sig (Elt Ideal)) : val209 V0 (Proc.devRef .tc main_arg2) = aB V0 :=
  (after_keep _ 10 stepOps208_ok main_arg2 (by decide +kernel) (val208 V0)).trans (val208_main_arg2 V0)
theorem val209_main_arg3 (V0 : Valuation τ sig (Elt Ideal)) : val209 V0 (Proc.devRef .tc main_arg3) = aC V0 :=
  (after_keep _ 10 stepOps208_ok main_arg3 (by decide +kernel) (val208 V0)).trans (val208_main_arg3 V0)
theorem val209_main_v3 (V0 : Valuation τ sig (Elt Ideal)) : val209 V0 (Proc.devRef .tc main_v3) = decay (aA V0) :=
  (after_keep _ 10 stepOps208_ok main_v3 (by decide +kernel) (val208 V0)).trans (val208_main_v3 V0)
theorem val209_h (V0 : Valuation τ sig (Elt Ideal)) : val209 V0 (Proc.devRef .tc main_v4175) = hI (aX V0) (aA V0) (aB V0) 208 := by
  refine ((step208_val (val208 V0)).1).trans ?_
  rw [val208_main_arg0 V0, val208_main_v3 V0, val208_main_arg2 V0, val208_h V0]
  exact (hI_at (aX V0) (aA V0) (aB V0) 207 208 (by decide) rfl).symm
theorem val209_y (V0 : Valuation τ sig (Elt Ideal)) : val209 V0 (Proc.devRef .tc main_v4183) = yJ (aX V0) (aA V0) (aB V0) (aC V0) 209 := by
  refine ((step208_val (val208 V0)).2).trans ?_
  rw [val208_main_arg0 V0, val208_main_v3 V0, val208_main_arg2 V0, val208_main_arg3 V0, val208_h V0, val208_y V0]
  rw [← hI_at (aX V0) (aA V0) (aB V0) 207 208 (by decide) rfl]
  exact (yJ_at (aX V0) (aA V0) (aB V0) (aC V0) 208 209 (by decide) rfl).symm
/-- The contents after step 209. -/
def val210 (V0 : Valuation τ sig (Elt Ideal)) : Valuation τ sig (Elt Ideal) := after (stepOps209 (F := Ideal)) (val209 V0)
theorem val210_main_arg0 (V0 : Valuation τ sig (Elt Ideal)) : val210 V0 (Proc.devRef .tc main_arg0) = aX V0 :=
  (after_keep _ 10 stepOps209_ok main_arg0 (by decide +kernel) (val209 V0)).trans (val209_main_arg0 V0)
theorem val210_main_arg1 (V0 : Valuation τ sig (Elt Ideal)) : val210 V0 (Proc.devRef .tc main_arg1) = aA V0 :=
  (after_keep _ 10 stepOps209_ok main_arg1 (by decide +kernel) (val209 V0)).trans (val209_main_arg1 V0)
theorem val210_main_arg2 (V0 : Valuation τ sig (Elt Ideal)) : val210 V0 (Proc.devRef .tc main_arg2) = aB V0 :=
  (after_keep _ 10 stepOps209_ok main_arg2 (by decide +kernel) (val209 V0)).trans (val209_main_arg2 V0)
theorem val210_main_arg3 (V0 : Valuation τ sig (Elt Ideal)) : val210 V0 (Proc.devRef .tc main_arg3) = aC V0 :=
  (after_keep _ 10 stepOps209_ok main_arg3 (by decide +kernel) (val209 V0)).trans (val209_main_arg3 V0)
theorem val210_main_v3 (V0 : Valuation τ sig (Elt Ideal)) : val210 V0 (Proc.devRef .tc main_v3) = decay (aA V0) :=
  (after_keep _ 10 stepOps209_ok main_v3 (by decide +kernel) (val209 V0)).trans (val209_main_v3 V0)
theorem val210_h (V0 : Valuation τ sig (Elt Ideal)) : val210 V0 (Proc.devRef .tc main_v4195) = hI (aX V0) (aA V0) (aB V0) 209 := by
  refine ((step209_val (val209 V0)).1).trans ?_
  rw [val209_main_arg0 V0, val209_main_v3 V0, val209_main_arg2 V0, val209_h V0]
  exact (hI_at (aX V0) (aA V0) (aB V0) 208 209 (by decide) rfl).symm
theorem val210_y (V0 : Valuation τ sig (Elt Ideal)) : val210 V0 (Proc.devRef .tc main_v4203) = yJ (aX V0) (aA V0) (aB V0) (aC V0) 210 := by
  refine ((step209_val (val209 V0)).2).trans ?_
  rw [val209_main_arg0 V0, val209_main_v3 V0, val209_main_arg2 V0, val209_main_arg3 V0, val209_h V0, val209_y V0]
  rw [← hI_at (aX V0) (aA V0) (aB V0) 208 209 (by decide) rfl]
  exact (yJ_at (aX V0) (aA V0) (aB V0) (aC V0) 209 210 (by decide) rfl).symm
/-- The contents after step 210. -/
def val211 (V0 : Valuation τ sig (Elt Ideal)) : Valuation τ sig (Elt Ideal) := after (stepOps210 (F := Ideal)) (val210 V0)
theorem val211_main_arg0 (V0 : Valuation τ sig (Elt Ideal)) : val211 V0 (Proc.devRef .tc main_arg0) = aX V0 :=
  (after_keep _ 10 stepOps210_ok main_arg0 (by decide +kernel) (val210 V0)).trans (val210_main_arg0 V0)
theorem val211_main_arg1 (V0 : Valuation τ sig (Elt Ideal)) : val211 V0 (Proc.devRef .tc main_arg1) = aA V0 :=
  (after_keep _ 10 stepOps210_ok main_arg1 (by decide +kernel) (val210 V0)).trans (val210_main_arg1 V0)
theorem val211_main_arg2 (V0 : Valuation τ sig (Elt Ideal)) : val211 V0 (Proc.devRef .tc main_arg2) = aB V0 :=
  (after_keep _ 10 stepOps210_ok main_arg2 (by decide +kernel) (val210 V0)).trans (val210_main_arg2 V0)
theorem val211_main_arg3 (V0 : Valuation τ sig (Elt Ideal)) : val211 V0 (Proc.devRef .tc main_arg3) = aC V0 :=
  (after_keep _ 10 stepOps210_ok main_arg3 (by decide +kernel) (val210 V0)).trans (val210_main_arg3 V0)
theorem val211_main_v3 (V0 : Valuation τ sig (Elt Ideal)) : val211 V0 (Proc.devRef .tc main_v3) = decay (aA V0) :=
  (after_keep _ 10 stepOps210_ok main_v3 (by decide +kernel) (val210 V0)).trans (val210_main_v3 V0)
theorem val211_h (V0 : Valuation τ sig (Elt Ideal)) : val211 V0 (Proc.devRef .tc main_v4215) = hI (aX V0) (aA V0) (aB V0) 210 := by
  refine ((step210_val (val210 V0)).1).trans ?_
  rw [val210_main_arg0 V0, val210_main_v3 V0, val210_main_arg2 V0, val210_h V0]
  exact (hI_at (aX V0) (aA V0) (aB V0) 209 210 (by decide) rfl).symm
theorem val211_y (V0 : Valuation τ sig (Elt Ideal)) : val211 V0 (Proc.devRef .tc main_v4223) = yJ (aX V0) (aA V0) (aB V0) (aC V0) 211 := by
  refine ((step210_val (val210 V0)).2).trans ?_
  rw [val210_main_arg0 V0, val210_main_v3 V0, val210_main_arg2 V0, val210_main_arg3 V0, val210_h V0, val210_y V0]
  rw [← hI_at (aX V0) (aA V0) (aB V0) 209 210 (by decide) rfl]
  exact (yJ_at (aX V0) (aA V0) (aB V0) (aC V0) 210 211 (by decide) rfl).symm
/-- The contents after step 211. -/
def val212 (V0 : Valuation τ sig (Elt Ideal)) : Valuation τ sig (Elt Ideal) := after (stepOps211 (F := Ideal)) (val211 V0)
theorem val212_main_arg0 (V0 : Valuation τ sig (Elt Ideal)) : val212 V0 (Proc.devRef .tc main_arg0) = aX V0 :=
  (after_keep _ 10 stepOps211_ok main_arg0 (by decide +kernel) (val211 V0)).trans (val211_main_arg0 V0)
theorem val212_main_arg1 (V0 : Valuation τ sig (Elt Ideal)) : val212 V0 (Proc.devRef .tc main_arg1) = aA V0 :=
  (after_keep _ 10 stepOps211_ok main_arg1 (by decide +kernel) (val211 V0)).trans (val211_main_arg1 V0)
theorem val212_main_arg2 (V0 : Valuation τ sig (Elt Ideal)) : val212 V0 (Proc.devRef .tc main_arg2) = aB V0 :=
  (after_keep _ 10 stepOps211_ok main_arg2 (by decide +kernel) (val211 V0)).trans (val211_main_arg2 V0)
theorem val212_main_arg3 (V0 : Valuation τ sig (Elt Ideal)) : val212 V0 (Proc.devRef .tc main_arg3) = aC V0 :=
  (after_keep _ 10 stepOps211_ok main_arg3 (by decide +kernel) (val211 V0)).trans (val211_main_arg3 V0)
theorem val212_main_v3 (V0 : Valuation τ sig (Elt Ideal)) : val212 V0 (Proc.devRef .tc main_v3) = decay (aA V0) :=
  (after_keep _ 10 stepOps211_ok main_v3 (by decide +kernel) (val211 V0)).trans (val211_main_v3 V0)
theorem val212_h (V0 : Valuation τ sig (Elt Ideal)) : val212 V0 (Proc.devRef .tc main_v4235) = hI (aX V0) (aA V0) (aB V0) 211 := by
  refine ((step211_val (val211 V0)).1).trans ?_
  rw [val211_main_arg0 V0, val211_main_v3 V0, val211_main_arg2 V0, val211_h V0]
  exact (hI_at (aX V0) (aA V0) (aB V0) 210 211 (by decide) rfl).symm
theorem val212_y (V0 : Valuation τ sig (Elt Ideal)) : val212 V0 (Proc.devRef .tc main_v4243) = yJ (aX V0) (aA V0) (aB V0) (aC V0) 212 := by
  refine ((step211_val (val211 V0)).2).trans ?_
  rw [val211_main_arg0 V0, val211_main_v3 V0, val211_main_arg2 V0, val211_main_arg3 V0, val211_h V0, val211_y V0]
  rw [← hI_at (aX V0) (aA V0) (aB V0) 210 211 (by decide) rfl]
  exact (yJ_at (aX V0) (aA V0) (aB V0) (aC V0) 211 212 (by decide) rfl).symm
/-- The contents after step 212. -/
def val213 (V0 : Valuation τ sig (Elt Ideal)) : Valuation τ sig (Elt Ideal) := after (stepOps212 (F := Ideal)) (val212 V0)
theorem val213_main_arg0 (V0 : Valuation τ sig (Elt Ideal)) : val213 V0 (Proc.devRef .tc main_arg0) = aX V0 :=
  (after_keep _ 10 stepOps212_ok main_arg0 (by decide +kernel) (val212 V0)).trans (val212_main_arg0 V0)
theorem val213_main_arg1 (V0 : Valuation τ sig (Elt Ideal)) : val213 V0 (Proc.devRef .tc main_arg1) = aA V0 :=
  (after_keep _ 10 stepOps212_ok main_arg1 (by decide +kernel) (val212 V0)).trans (val212_main_arg1 V0)
theorem val213_main_arg2 (V0 : Valuation τ sig (Elt Ideal)) : val213 V0 (Proc.devRef .tc main_arg2) = aB V0 :=
  (after_keep _ 10 stepOps212_ok main_arg2 (by decide +kernel) (val212 V0)).trans (val212_main_arg2 V0)
theorem val213_main_arg3 (V0 : Valuation τ sig (Elt Ideal)) : val213 V0 (Proc.devRef .tc main_arg3) = aC V0 :=
  (after_keep _ 10 stepOps212_ok main_arg3 (by decide +kernel) (val212 V0)).trans (val212_main_arg3 V0)
theorem val213_main_v3 (V0 : Valuation τ sig (Elt Ideal)) : val213 V0 (Proc.devRef .tc main_v3) = decay (aA V0) :=
  (after_keep _ 10 stepOps212_ok main_v3 (by decide +kernel) (val212 V0)).trans (val212_main_v3 V0)
theorem val213_h (V0 : Valuation τ sig (Elt Ideal)) : val213 V0 (Proc.devRef .tc main_v4255) = hI (aX V0) (aA V0) (aB V0) 212 := by
  refine ((step212_val (val212 V0)).1).trans ?_
  rw [val212_main_arg0 V0, val212_main_v3 V0, val212_main_arg2 V0, val212_h V0]
  exact (hI_at (aX V0) (aA V0) (aB V0) 211 212 (by decide) rfl).symm
theorem val213_y (V0 : Valuation τ sig (Elt Ideal)) : val213 V0 (Proc.devRef .tc main_v4263) = yJ (aX V0) (aA V0) (aB V0) (aC V0) 213 := by
  refine ((step212_val (val212 V0)).2).trans ?_
  rw [val212_main_arg0 V0, val212_main_v3 V0, val212_main_arg2 V0, val212_main_arg3 V0, val212_h V0, val212_y V0]
  rw [← hI_at (aX V0) (aA V0) (aB V0) 211 212 (by decide) rfl]
  exact (yJ_at (aX V0) (aA V0) (aB V0) (aC V0) 212 213 (by decide) rfl).symm
/-- The contents after step 213. -/
def val214 (V0 : Valuation τ sig (Elt Ideal)) : Valuation τ sig (Elt Ideal) := after (stepOps213 (F := Ideal)) (val213 V0)
theorem val214_main_arg0 (V0 : Valuation τ sig (Elt Ideal)) : val214 V0 (Proc.devRef .tc main_arg0) = aX V0 :=
  (after_keep _ 10 stepOps213_ok main_arg0 (by decide +kernel) (val213 V0)).trans (val213_main_arg0 V0)
theorem val214_main_arg1 (V0 : Valuation τ sig (Elt Ideal)) : val214 V0 (Proc.devRef .tc main_arg1) = aA V0 :=
  (after_keep _ 10 stepOps213_ok main_arg1 (by decide +kernel) (val213 V0)).trans (val213_main_arg1 V0)
theorem val214_main_arg2 (V0 : Valuation τ sig (Elt Ideal)) : val214 V0 (Proc.devRef .tc main_arg2) = aB V0 :=
  (after_keep _ 10 stepOps213_ok main_arg2 (by decide +kernel) (val213 V0)).trans (val213_main_arg2 V0)
theorem val214_main_arg3 (V0 : Valuation τ sig (Elt Ideal)) : val214 V0 (Proc.devRef .tc main_arg3) = aC V0 :=
  (after_keep _ 10 stepOps213_ok main_arg3 (by decide +kernel) (val213 V0)).trans (val213_main_arg3 V0)
theorem val214_main_v3 (V0 : Valuation τ sig (Elt Ideal)) : val214 V0 (Proc.devRef .tc main_v3) = decay (aA V0) :=
  (after_keep _ 10 stepOps213_ok main_v3 (by decide +kernel) (val213 V0)).trans (val213_main_v3 V0)
theorem val214_h (V0 : Valuation τ sig (Elt Ideal)) : val214 V0 (Proc.devRef .tc main_v4275) = hI (aX V0) (aA V0) (aB V0) 213 := by
  refine ((step213_val (val213 V0)).1).trans ?_
  rw [val213_main_arg0 V0, val213_main_v3 V0, val213_main_arg2 V0, val213_h V0]
  exact (hI_at (aX V0) (aA V0) (aB V0) 212 213 (by decide) rfl).symm
theorem val214_y (V0 : Valuation τ sig (Elt Ideal)) : val214 V0 (Proc.devRef .tc main_v4283) = yJ (aX V0) (aA V0) (aB V0) (aC V0) 214 := by
  refine ((step213_val (val213 V0)).2).trans ?_
  rw [val213_main_arg0 V0, val213_main_v3 V0, val213_main_arg2 V0, val213_main_arg3 V0, val213_h V0, val213_y V0]
  rw [← hI_at (aX V0) (aA V0) (aB V0) 212 213 (by decide) rfl]
  exact (yJ_at (aX V0) (aA V0) (aB V0) (aC V0) 213 214 (by decide) rfl).symm
/-- The contents after step 214. -/
def val215 (V0 : Valuation τ sig (Elt Ideal)) : Valuation τ sig (Elt Ideal) := after (stepOps214 (F := Ideal)) (val214 V0)
theorem val215_main_arg0 (V0 : Valuation τ sig (Elt Ideal)) : val215 V0 (Proc.devRef .tc main_arg0) = aX V0 :=
  (after_keep _ 10 stepOps214_ok main_arg0 (by decide +kernel) (val214 V0)).trans (val214_main_arg0 V0)
theorem val215_main_arg1 (V0 : Valuation τ sig (Elt Ideal)) : val215 V0 (Proc.devRef .tc main_arg1) = aA V0 :=
  (after_keep _ 10 stepOps214_ok main_arg1 (by decide +kernel) (val214 V0)).trans (val214_main_arg1 V0)
theorem val215_main_arg2 (V0 : Valuation τ sig (Elt Ideal)) : val215 V0 (Proc.devRef .tc main_arg2) = aB V0 :=
  (after_keep _ 10 stepOps214_ok main_arg2 (by decide +kernel) (val214 V0)).trans (val214_main_arg2 V0)
theorem val215_main_arg3 (V0 : Valuation τ sig (Elt Ideal)) : val215 V0 (Proc.devRef .tc main_arg3) = aC V0 :=
  (after_keep _ 10 stepOps214_ok main_arg3 (by decide +kernel) (val214 V0)).trans (val214_main_arg3 V0)
theorem val215_main_v3 (V0 : Valuation τ sig (Elt Ideal)) : val215 V0 (Proc.devRef .tc main_v3) = decay (aA V0) :=
  (after_keep _ 10 stepOps214_ok main_v3 (by decide +kernel) (val214 V0)).trans (val214_main_v3 V0)
theorem val215_h (V0 : Valuation τ sig (Elt Ideal)) : val215 V0 (Proc.devRef .tc main_v4295) = hI (aX V0) (aA V0) (aB V0) 214 := by
  refine ((step214_val (val214 V0)).1).trans ?_
  rw [val214_main_arg0 V0, val214_main_v3 V0, val214_main_arg2 V0, val214_h V0]
  exact (hI_at (aX V0) (aA V0) (aB V0) 213 214 (by decide) rfl).symm
theorem val215_y (V0 : Valuation τ sig (Elt Ideal)) : val215 V0 (Proc.devRef .tc main_v4303) = yJ (aX V0) (aA V0) (aB V0) (aC V0) 215 := by
  refine ((step214_val (val214 V0)).2).trans ?_
  rw [val214_main_arg0 V0, val214_main_v3 V0, val214_main_arg2 V0, val214_main_arg3 V0, val214_h V0, val214_y V0]
  rw [← hI_at (aX V0) (aA V0) (aB V0) 213 214 (by decide) rfl]
  exact (yJ_at (aX V0) (aA V0) (aB V0) (aC V0) 214 215 (by decide) rfl).symm
/-- The contents after step 215. -/
def val216 (V0 : Valuation τ sig (Elt Ideal)) : Valuation τ sig (Elt Ideal) := after (stepOps215 (F := Ideal)) (val215 V0)
theorem val216_main_arg0 (V0 : Valuation τ sig (Elt Ideal)) : val216 V0 (Proc.devRef .tc main_arg0) = aX V0 :=
  (after_keep _ 10 stepOps215_ok main_arg0 (by decide +kernel) (val215 V0)).trans (val215_main_arg0 V0)
theorem val216_main_arg1 (V0 : Valuation τ sig (Elt Ideal)) : val216 V0 (Proc.devRef .tc main_arg1) = aA V0 :=
  (after_keep _ 10 stepOps215_ok main_arg1 (by decide +kernel) (val215 V0)).trans (val215_main_arg1 V0)
theorem val216_main_arg2 (V0 : Valuation τ sig (Elt Ideal)) : val216 V0 (Proc.devRef .tc main_arg2) = aB V0 :=
  (after_keep _ 10 stepOps215_ok main_arg2 (by decide +kernel) (val215 V0)).trans (val215_main_arg2 V0)
theorem val216_main_arg3 (V0 : Valuation τ sig (Elt Ideal)) : val216 V0 (Proc.devRef .tc main_arg3) = aC V0 :=
  (after_keep _ 10 stepOps215_ok main_arg3 (by decide +kernel) (val215 V0)).trans (val215_main_arg3 V0)
theorem val216_main_v3 (V0 : Valuation τ sig (Elt Ideal)) : val216 V0 (Proc.devRef .tc main_v3) = decay (aA V0) :=
  (after_keep _ 10 stepOps215_ok main_v3 (by decide +kernel) (val215 V0)).trans (val215_main_v3 V0)
theorem val216_h (V0 : Valuation τ sig (Elt Ideal)) : val216 V0 (Proc.devRef .tc main_v4315) = hI (aX V0) (aA V0) (aB V0) 215 := by
  refine ((step215_val (val215 V0)).1).trans ?_
  rw [val215_main_arg0 V0, val215_main_v3 V0, val215_main_arg2 V0, val215_h V0]
  exact (hI_at (aX V0) (aA V0) (aB V0) 214 215 (by decide) rfl).symm
theorem val216_y (V0 : Valuation τ sig (Elt Ideal)) : val216 V0 (Proc.devRef .tc main_v4323) = yJ (aX V0) (aA V0) (aB V0) (aC V0) 216 := by
  refine ((step215_val (val215 V0)).2).trans ?_
  rw [val215_main_arg0 V0, val215_main_v3 V0, val215_main_arg2 V0, val215_main_arg3 V0, val215_h V0, val215_y V0]
  rw [← hI_at (aX V0) (aA V0) (aB V0) 214 215 (by decide) rfl]
  exact (yJ_at (aX V0) (aA V0) (aB V0) (aC V0) 215 216 (by decide) rfl).symm
/-- The contents after step 216. -/
def val217 (V0 : Valuation τ sig (Elt Ideal)) : Valuation τ sig (Elt Ideal) := after (stepOps216 (F := Ideal)) (val216 V0)
theorem val217_main_arg0 (V0 : Valuation τ sig (Elt Ideal)) : val217 V0 (Proc.devRef .tc main_arg0) = aX V0 :=
  (after_keep _ 10 stepOps216_ok main_arg0 (by decide +kernel) (val216 V0)).trans (val216_main_arg0 V0)
theorem val217_main_arg1 (V0 : Valuation τ sig (Elt Ideal)) : val217 V0 (Proc.devRef .tc main_arg1) = aA V0 :=
  (after_keep _ 10 stepOps216_ok main_arg1 (by decide +kernel) (val216 V0)).trans (val216_main_arg1 V0)
theorem val217_main_arg2 (V0 : Valuation τ sig (Elt Ideal)) : val217 V0 (Proc.devRef .tc main_arg2) = aB V0 :=
  (after_keep _ 10 stepOps216_ok main_arg2 (by decide +kernel) (val216 V0)).trans (val216_main_arg2 V0)
theorem val217_main_arg3 (V0 : Valuation τ sig (Elt Ideal)) : val217 V0 (Proc.devRef .tc main_arg3) = aC V0 :=
  (after_keep _ 10 stepOps216_ok main_arg3 (by decide +kernel) (val216 V0)).trans (val216_main_arg3 V0)
theorem val217_main_v3 (V0 : Valuation τ sig (Elt Ideal)) : val217 V0 (Proc.devRef .tc main_v3) = decay (aA V0) :=
  (after_keep _ 10 stepOps216_ok main_v3 (by decide +kernel) (val216 V0)).trans (val216_main_v3 V0)
theorem val217_h (V0 : Valuation τ sig (Elt Ideal)) : val217 V0 (Proc.devRef .tc main_v4335) = hI (aX V0) (aA V0) (aB V0) 216 := by
  refine ((step216_val (val216 V0)).1).trans ?_
  rw [val216_main_arg0 V0, val216_main_v3 V0, val216_main_arg2 V0, val216_h V0]
  exact (hI_at (aX V0) (aA V0) (aB V0) 215 216 (by decide) rfl).symm
theorem val217_y (V0 : Valuation τ sig (Elt Ideal)) : val217 V0 (Proc.devRef .tc main_v4343) = yJ (aX V0) (aA V0) (aB V0) (aC V0) 217 := by
  refine ((step216_val (val216 V0)).2).trans ?_
  rw [val216_main_arg0 V0, val216_main_v3 V0, val216_main_arg2 V0, val216_main_arg3 V0, val216_h V0, val216_y V0]
  rw [← hI_at (aX V0) (aA V0) (aB V0) 215 216 (by decide) rfl]
  exact (yJ_at (aX V0) (aA V0) (aB V0) (aC V0) 216 217 (by decide) rfl).symm
/-- The contents after step 217. -/
def val218 (V0 : Valuation τ sig (Elt Ideal)) : Valuation τ sig (Elt Ideal) := after (stepOps217 (F := Ideal)) (val217 V0)
theorem val218_main_arg0 (V0 : Valuation τ sig (Elt Ideal)) : val218 V0 (Proc.devRef .tc main_arg0) = aX V0 :=
  (after_keep _ 10 stepOps217_ok main_arg0 (by decide +kernel) (val217 V0)).trans (val217_main_arg0 V0)
theorem val218_main_arg1 (V0 : Valuation τ sig (Elt Ideal)) : val218 V0 (Proc.devRef .tc main_arg1) = aA V0 :=
  (after_keep _ 10 stepOps217_ok main_arg1 (by decide +kernel) (val217 V0)).trans (val217_main_arg1 V0)
theorem val218_main_arg2 (V0 : Valuation τ sig (Elt Ideal)) : val218 V0 (Proc.devRef .tc main_arg2) = aB V0 :=
  (after_keep _ 10 stepOps217_ok main_arg2 (by decide +kernel) (val217 V0)).trans (val217_main_arg2 V0)
theorem val218_main_arg3 (V0 : Valuation τ sig (Elt Ideal)) : val218 V0 (Proc.devRef .tc main_arg3) = aC V0 :=
  (after_keep _ 10 stepOps217_ok main_arg3 (by decide +kernel) (val217 V0)).trans (val217_main_arg3 V0)
theorem val218_main_v3 (V0 : Valuation τ sig (Elt Ideal)) : val218 V0 (Proc.devRef .tc main_v3) = decay (aA V0) :=
  (after_keep _ 10 stepOps217_ok main_v3 (by decide +kernel) (val217 V0)).trans (val217_main_v3 V0)
theorem val218_h (V0 : Valuation τ sig (Elt Ideal)) : val218 V0 (Proc.devRef .tc main_v4355) = hI (aX V0) (aA V0) (aB V0) 217 := by
  refine ((step217_val (val217 V0)).1).trans ?_
  rw [val217_main_arg0 V0, val217_main_v3 V0, val217_main_arg2 V0, val217_h V0]
  exact (hI_at (aX V0) (aA V0) (aB V0) 216 217 (by decide) rfl).symm
theorem val218_y (V0 : Valuation τ sig (Elt Ideal)) : val218 V0 (Proc.devRef .tc main_v4363) = yJ (aX V0) (aA V0) (aB V0) (aC V0) 218 := by
  refine ((step217_val (val217 V0)).2).trans ?_
  rw [val217_main_arg0 V0, val217_main_v3 V0, val217_main_arg2 V0, val217_main_arg3 V0, val217_h V0, val217_y V0]
  rw [← hI_at (aX V0) (aA V0) (aB V0) 216 217 (by decide) rfl]
  exact (yJ_at (aX V0) (aA V0) (aB V0) (aC V0) 217 218 (by decide) rfl).symm
/-- The contents after step 218. -/
def val219 (V0 : Valuation τ sig (Elt Ideal)) : Valuation τ sig (Elt Ideal) := after (stepOps218 (F := Ideal)) (val218 V0)
theorem val219_main_arg0 (V0 : Valuation τ sig (Elt Ideal)) : val219 V0 (Proc.devRef .tc main_arg0) = aX V0 :=
  (after_keep _ 10 stepOps218_ok main_arg0 (by decide +kernel) (val218 V0)).trans (val218_main_arg0 V0)
theorem val219_main_arg1 (V0 : Valuation τ sig (Elt Ideal)) : val219 V0 (Proc.devRef .tc main_arg1) = aA V0 :=
  (after_keep _ 10 stepOps218_ok main_arg1 (by decide +kernel) (val218 V0)).trans (val218_main_arg1 V0)
theorem val219_main_arg2 (V0 : Valuation τ sig (Elt Ideal)) : val219 V0 (Proc.devRef .tc main_arg2) = aB V0 :=
  (after_keep _ 10 stepOps218_ok main_arg2 (by decide +kernel) (val218 V0)).trans (val218_main_arg2 V0)
theorem val219_main_arg3 (V0 : Valuation τ sig (Elt Ideal)) : val219 V0 (Proc.devRef .tc main_arg3) = aC V0 :=
  (after_keep _ 10 stepOps218_ok main_arg3 (by decide +kernel) (val218 V0)).trans (val218_main_arg3 V0)
theorem val219_main_v3 (V0 : Valuation τ sig (Elt Ideal)) : val219 V0 (Proc.devRef .tc main_v3) = decay (aA V0) :=
  (after_keep _ 10 stepOps218_ok main_v3 (by decide +kernel) (val218 V0)).trans (val218_main_v3 V0)
theorem val219_h (V0 : Valuation τ sig (Elt Ideal)) : val219 V0 (Proc.devRef .tc main_v4375) = hI (aX V0) (aA V0) (aB V0) 218 := by
  refine ((step218_val (val218 V0)).1).trans ?_
  rw [val218_main_arg0 V0, val218_main_v3 V0, val218_main_arg2 V0, val218_h V0]
  exact (hI_at (aX V0) (aA V0) (aB V0) 217 218 (by decide) rfl).symm
theorem val219_y (V0 : Valuation τ sig (Elt Ideal)) : val219 V0 (Proc.devRef .tc main_v4383) = yJ (aX V0) (aA V0) (aB V0) (aC V0) 219 := by
  refine ((step218_val (val218 V0)).2).trans ?_
  rw [val218_main_arg0 V0, val218_main_v3 V0, val218_main_arg2 V0, val218_main_arg3 V0, val218_h V0, val218_y V0]
  rw [← hI_at (aX V0) (aA V0) (aB V0) 217 218 (by decide) rfl]
  exact (yJ_at (aX V0) (aA V0) (aB V0) (aC V0) 218 219 (by decide) rfl).symm
/-- The contents after step 219. -/
def val220 (V0 : Valuation τ sig (Elt Ideal)) : Valuation τ sig (Elt Ideal) := after (stepOps219 (F := Ideal)) (val219 V0)
theorem val220_main_arg0 (V0 : Valuation τ sig (Elt Ideal)) : val220 V0 (Proc.devRef .tc main_arg0) = aX V0 :=
  (after_keep _ 10 stepOps219_ok main_arg0 (by decide +kernel) (val219 V0)).trans (val219_main_arg0 V0)
theorem val220_main_arg1 (V0 : Valuation τ sig (Elt Ideal)) : val220 V0 (Proc.devRef .tc main_arg1) = aA V0 :=
  (after_keep _ 10 stepOps219_ok main_arg1 (by decide +kernel) (val219 V0)).trans (val219_main_arg1 V0)
theorem val220_main_arg2 (V0 : Valuation τ sig (Elt Ideal)) : val220 V0 (Proc.devRef .tc main_arg2) = aB V0 :=
  (after_keep _ 10 stepOps219_ok main_arg2 (by decide +kernel) (val219 V0)).trans (val219_main_arg2 V0)
theorem val220_main_arg3 (V0 : Valuation τ sig (Elt Ideal)) : val220 V0 (Proc.devRef .tc main_arg3) = aC V0 :=
  (after_keep _ 10 stepOps219_ok main_arg3 (by decide +kernel) (val219 V0)).trans (val219_main_arg3 V0)
theorem val220_main_v3 (V0 : Valuation τ sig (Elt Ideal)) : val220 V0 (Proc.devRef .tc main_v3) = decay (aA V0) :=
  (after_keep _ 10 stepOps219_ok main_v3 (by decide +kernel) (val219 V0)).trans (val219_main_v3 V0)
theorem val220_h (V0 : Valuation τ sig (Elt Ideal)) : val220 V0 (Proc.devRef .tc main_v4395) = hI (aX V0) (aA V0) (aB V0) 219 := by
  refine ((step219_val (val219 V0)).1).trans ?_
  rw [val219_main_arg0 V0, val219_main_v3 V0, val219_main_arg2 V0, val219_h V0]
  exact (hI_at (aX V0) (aA V0) (aB V0) 218 219 (by decide) rfl).symm
theorem val220_y (V0 : Valuation τ sig (Elt Ideal)) : val220 V0 (Proc.devRef .tc main_v4403) = yJ (aX V0) (aA V0) (aB V0) (aC V0) 220 := by
  refine ((step219_val (val219 V0)).2).trans ?_
  rw [val219_main_arg0 V0, val219_main_v3 V0, val219_main_arg2 V0, val219_main_arg3 V0, val219_h V0, val219_y V0]
  rw [← hI_at (aX V0) (aA V0) (aB V0) 218 219 (by decide) rfl]
  exact (yJ_at (aX V0) (aA V0) (aB V0) (aC V0) 219 220 (by decide) rfl).symm
/-- The contents after step 220. -/
def val221 (V0 : Valuation τ sig (Elt Ideal)) : Valuation τ sig (Elt Ideal) := after (stepOps220 (F := Ideal)) (val220 V0)
theorem val221_main_arg0 (V0 : Valuation τ sig (Elt Ideal)) : val221 V0 (Proc.devRef .tc main_arg0) = aX V0 :=
  (after_keep _ 10 stepOps220_ok main_arg0 (by decide +kernel) (val220 V0)).trans (val220_main_arg0 V0)
theorem val221_main_arg1 (V0 : Valuation τ sig (Elt Ideal)) : val221 V0 (Proc.devRef .tc main_arg1) = aA V0 :=
  (after_keep _ 10 stepOps220_ok main_arg1 (by decide +kernel) (val220 V0)).trans (val220_main_arg1 V0)
theorem val221_main_arg2 (V0 : Valuation τ sig (Elt Ideal)) : val221 V0 (Proc.devRef .tc main_arg2) = aB V0 :=
  (after_keep _ 10 stepOps220_ok main_arg2 (by decide +kernel) (val220 V0)).trans (val220_main_arg2 V0)
theorem val221_main_arg3 (V0 : Valuation τ sig (Elt Ideal)) : val221 V0 (Proc.devRef .tc main_arg3) = aC V0 :=
  (after_keep _ 10 stepOps220_ok main_arg3 (by decide +kernel) (val220 V0)).trans (val220_main_arg3 V0)
theorem val221_main_v3 (V0 : Valuation τ sig (Elt Ideal)) : val221 V0 (Proc.devRef .tc main_v3) = decay (aA V0) :=
  (after_keep _ 10 stepOps220_ok main_v3 (by decide +kernel) (val220 V0)).trans (val220_main_v3 V0)
theorem val221_h (V0 : Valuation τ sig (Elt Ideal)) : val221 V0 (Proc.devRef .tc main_v4415) = hI (aX V0) (aA V0) (aB V0) 220 := by
  refine ((step220_val (val220 V0)).1).trans ?_
  rw [val220_main_arg0 V0, val220_main_v3 V0, val220_main_arg2 V0, val220_h V0]
  exact (hI_at (aX V0) (aA V0) (aB V0) 219 220 (by decide) rfl).symm
theorem val221_y (V0 : Valuation τ sig (Elt Ideal)) : val221 V0 (Proc.devRef .tc main_v4423) = yJ (aX V0) (aA V0) (aB V0) (aC V0) 221 := by
  refine ((step220_val (val220 V0)).2).trans ?_
  rw [val220_main_arg0 V0, val220_main_v3 V0, val220_main_arg2 V0, val220_main_arg3 V0, val220_h V0, val220_y V0]
  rw [← hI_at (aX V0) (aA V0) (aB V0) 219 220 (by decide) rfl]
  exact (yJ_at (aX V0) (aA V0) (aB V0) (aC V0) 220 221 (by decide) rfl).symm
/-- The contents after step 221. -/
def val222 (V0 : Valuation τ sig (Elt Ideal)) : Valuation τ sig (Elt Ideal) := after (stepOps221 (F := Ideal)) (val221 V0)
theorem val222_main_arg0 (V0 : Valuation τ sig (Elt Ideal)) : val222 V0 (Proc.devRef .tc main_arg0) = aX V0 :=
  (after_keep _ 10 stepOps221_ok main_arg0 (by decide +kernel) (val221 V0)).trans (val221_main_arg0 V0)
theorem val222_main_arg1 (V0 : Valuation τ sig (Elt Ideal)) : val222 V0 (Proc.devRef .tc main_arg1) = aA V0 :=
  (after_keep _ 10 stepOps221_ok main_arg1 (by decide +kernel) (val221 V0)).trans (val221_main_arg1 V0)
theorem val222_main_arg2 (V0 : Valuation τ sig (Elt Ideal)) : val222 V0 (Proc.devRef .tc main_arg2) = aB V0 :=
  (after_keep _ 10 stepOps221_ok main_arg2 (by decide +kernel) (val221 V0)).trans (val221_main_arg2 V0)
theorem val222_main_arg3 (V0 : Valuation τ sig (Elt Ideal)) : val222 V0 (Proc.devRef .tc main_arg3) = aC V0 :=
  (after_keep _ 10 stepOps221_ok main_arg3 (by decide +kernel) (val221 V0)).trans (val221_main_arg3 V0)
theorem val222_main_v3 (V0 : Valuation τ sig (Elt Ideal)) : val222 V0 (Proc.devRef .tc main_v3) = decay (aA V0) :=
  (after_keep _ 10 stepOps221_ok main_v3 (by decide +kernel) (val221 V0)).trans (val221_main_v3 V0)
theorem val222_h (V0 : Valuation τ sig (Elt Ideal)) : val222 V0 (Proc.devRef .tc main_v4435) = hI (aX V0) (aA V0) (aB V0) 221 := by
  refine ((step221_val (val221 V0)).1).trans ?_
  rw [val221_main_arg0 V0, val221_main_v3 V0, val221_main_arg2 V0, val221_h V0]
  exact (hI_at (aX V0) (aA V0) (aB V0) 220 221 (by decide) rfl).symm
theorem val222_y (V0 : Valuation τ sig (Elt Ideal)) : val222 V0 (Proc.devRef .tc main_v4443) = yJ (aX V0) (aA V0) (aB V0) (aC V0) 222 := by
  refine ((step221_val (val221 V0)).2).trans ?_
  rw [val221_main_arg0 V0, val221_main_v3 V0, val221_main_arg2 V0, val221_main_arg3 V0, val221_h V0, val221_y V0]
  rw [← hI_at (aX V0) (aA V0) (aB V0) 220 221 (by decide) rfl]
  exact (yJ_at (aX V0) (aA V0) (aB V0) (aC V0) 221 222 (by decide) rfl).symm
/-- The contents after step 222. -/
def val223 (V0 : Valuation τ sig (Elt Ideal)) : Valuation τ sig (Elt Ideal) := after (stepOps222 (F := Ideal)) (val222 V0)
theorem val223_main_arg0 (V0 : Valuation τ sig (Elt Ideal)) : val223 V0 (Proc.devRef .tc main_arg0) = aX V0 :=
  (after_keep _ 10 stepOps222_ok main_arg0 (by decide +kernel) (val222 V0)).trans (val222_main_arg0 V0)
theorem val223_main_arg1 (V0 : Valuation τ sig (Elt Ideal)) : val223 V0 (Proc.devRef .tc main_arg1) = aA V0 :=
  (after_keep _ 10 stepOps222_ok main_arg1 (by decide +kernel) (val222 V0)).trans (val222_main_arg1 V0)
theorem val223_main_arg2 (V0 : Valuation τ sig (Elt Ideal)) : val223 V0 (Proc.devRef .tc main_arg2) = aB V0 :=
  (after_keep _ 10 stepOps222_ok main_arg2 (by decide +kernel) (val222 V0)).trans (val222_main_arg2 V0)
theorem val223_main_arg3 (V0 : Valuation τ sig (Elt Ideal)) : val223 V0 (Proc.devRef .tc main_arg3) = aC V0 :=
  (after_keep _ 10 stepOps222_ok main_arg3 (by decide +kernel) (val222 V0)).trans (val222_main_arg3 V0)
theorem val223_main_v3 (V0 : Valuation τ sig (Elt Ideal)) : val223 V0 (Proc.devRef .tc main_v3) = decay (aA V0) :=
  (after_keep _ 10 stepOps222_ok main_v3 (by decide +kernel) (val222 V0)).trans (val222_main_v3 V0)
theorem val223_h (V0 : Valuation τ sig (Elt Ideal)) : val223 V0 (Proc.devRef .tc main_v4455) = hI (aX V0) (aA V0) (aB V0) 222 := by
  refine ((step222_val (val222 V0)).1).trans ?_
  rw [val222_main_arg0 V0, val222_main_v3 V0, val222_main_arg2 V0, val222_h V0]
  exact (hI_at (aX V0) (aA V0) (aB V0) 221 222 (by decide) rfl).symm
theorem val223_y (V0 : Valuation τ sig (Elt Ideal)) : val223 V0 (Proc.devRef .tc main_v4463) = yJ (aX V0) (aA V0) (aB V0) (aC V0) 223 := by
  refine ((step222_val (val222 V0)).2).trans ?_
  rw [val222_main_arg0 V0, val222_main_v3 V0, val222_main_arg2 V0, val222_main_arg3 V0, val222_h V0, val222_y V0]
  rw [← hI_at (aX V0) (aA V0) (aB V0) 221 222 (by decide) rfl]
  exact (yJ_at (aX V0) (aA V0) (aB V0) (aC V0) 222 223 (by decide) rfl).symm
/-- The contents after step 223. -/
def val224 (V0 : Valuation τ sig (Elt Ideal)) : Valuation τ sig (Elt Ideal) := after (stepOps223 (F := Ideal)) (val223 V0)
theorem val224_main_arg0 (V0 : Valuation τ sig (Elt Ideal)) : val224 V0 (Proc.devRef .tc main_arg0) = aX V0 :=
  (after_keep _ 10 stepOps223_ok main_arg0 (by decide +kernel) (val223 V0)).trans (val223_main_arg0 V0)
theorem val224_main_arg1 (V0 : Valuation τ sig (Elt Ideal)) : val224 V0 (Proc.devRef .tc main_arg1) = aA V0 :=
  (after_keep _ 10 stepOps223_ok main_arg1 (by decide +kernel) (val223 V0)).trans (val223_main_arg1 V0)
theorem val224_main_arg2 (V0 : Valuation τ sig (Elt Ideal)) : val224 V0 (Proc.devRef .tc main_arg2) = aB V0 :=
  (after_keep _ 10 stepOps223_ok main_arg2 (by decide +kernel) (val223 V0)).trans (val223_main_arg2 V0)
theorem val224_main_arg3 (V0 : Valuation τ sig (Elt Ideal)) : val224 V0 (Proc.devRef .tc main_arg3) = aC V0 :=
  (after_keep _ 10 stepOps223_ok main_arg3 (by decide +kernel) (val223 V0)).trans (val223_main_arg3 V0)
theorem val224_main_v3 (V0 : Valuation τ sig (Elt Ideal)) : val224 V0 (Proc.devRef .tc main_v3) = decay (aA V0) :=
  (after_keep _ 10 stepOps223_ok main_v3 (by decide +kernel) (val223 V0)).trans (val223_main_v3 V0)
theorem val224_h (V0 : Valuation τ sig (Elt Ideal)) : val224 V0 (Proc.devRef .tc main_v4475) = hI (aX V0) (aA V0) (aB V0) 223 := by
  refine ((step223_val (val223 V0)).1).trans ?_
  rw [val223_main_arg0 V0, val223_main_v3 V0, val223_main_arg2 V0, val223_h V0]
  exact (hI_at (aX V0) (aA V0) (aB V0) 222 223 (by decide) rfl).symm
theorem val224_y (V0 : Valuation τ sig (Elt Ideal)) : val224 V0 (Proc.devRef .tc main_v4483) = yJ (aX V0) (aA V0) (aB V0) (aC V0) 224 := by
  refine ((step223_val (val223 V0)).2).trans ?_
  rw [val223_main_arg0 V0, val223_main_v3 V0, val223_main_arg2 V0, val223_main_arg3 V0, val223_h V0, val223_y V0]
  rw [← hI_at (aX V0) (aA V0) (aB V0) 222 223 (by decide) rfl]
  exact (yJ_at (aX V0) (aA V0) (aB V0) (aC V0) 223 224 (by decide) rfl).symm
/-- The contents after step 224. -/
def val225 (V0 : Valuation τ sig (Elt Ideal)) : Valuation τ sig (Elt Ideal) := after (stepOps224 (F := Ideal)) (val224 V0)
theorem val225_main_arg0 (V0 : Valuation τ sig (Elt Ideal)) : val225 V0 (Proc.devRef .tc main_arg0) = aX V0 :=
  (after_keep _ 10 stepOps224_ok main_arg0 (by decide +kernel) (val224 V0)).trans (val224_main_arg0 V0)
theorem val225_main_arg1 (V0 : Valuation τ sig (Elt Ideal)) : val225 V0 (Proc.devRef .tc main_arg1) = aA V0 :=
  (after_keep _ 10 stepOps224_ok main_arg1 (by decide +kernel) (val224 V0)).trans (val224_main_arg1 V0)
theorem val225_main_arg2 (V0 : Valuation τ sig (Elt Ideal)) : val225 V0 (Proc.devRef .tc main_arg2) = aB V0 :=
  (after_keep _ 10 stepOps224_ok main_arg2 (by decide +kernel) (val224 V0)).trans (val224_main_arg2 V0)
theorem val225_main_arg3 (V0 : Valuation τ sig (Elt Ideal)) : val225 V0 (Proc.devRef .tc main_arg3) = aC V0 :=
  (after_keep _ 10 stepOps224_ok main_arg3 (by decide +kernel) (val224 V0)).trans (val224_main_arg3 V0)
theorem val225_main_v3 (V0 : Valuation τ sig (Elt Ideal)) : val225 V0 (Proc.devRef .tc main_v3) = decay (aA V0) :=
  (after_keep _ 10 stepOps224_ok main_v3 (by decide +kernel) (val224 V0)).trans (val224_main_v3 V0)
theorem val225_h (V0 : Valuation τ sig (Elt Ideal)) : val225 V0 (Proc.devRef .tc main_v4495) = hI (aX V0) (aA V0) (aB V0) 224 := by
  refine ((step224_val (val224 V0)).1).trans ?_
  rw [val224_main_arg0 V0, val224_main_v3 V0, val224_main_arg2 V0, val224_h V0]
  exact (hI_at (aX V0) (aA V0) (aB V0) 223 224 (by decide) rfl).symm
theorem val225_y (V0 : Valuation τ sig (Elt Ideal)) : val225 V0 (Proc.devRef .tc main_v4503) = yJ (aX V0) (aA V0) (aB V0) (aC V0) 225 := by
  refine ((step224_val (val224 V0)).2).trans ?_
  rw [val224_main_arg0 V0, val224_main_v3 V0, val224_main_arg2 V0, val224_main_arg3 V0, val224_h V0, val224_y V0]
  rw [← hI_at (aX V0) (aA V0) (aB V0) 223 224 (by decide) rfl]
  exact (yJ_at (aX V0) (aA V0) (aB V0) (aC V0) 224 225 (by decide) rfl).symm
/-- The contents after step 225. -/
def val226 (V0 : Valuation τ sig (Elt Ideal)) : Valuation τ sig (Elt Ideal) := after (stepOps225 (F := Ideal)) (val225 V0)
theorem val226_main_arg0 (V0 : Valuation τ sig (Elt Ideal)) : val226 V0 (Proc.devRef .tc main_arg0) = aX V0 :=
  (after_keep _ 10 stepOps225_ok main_arg0 (by decide +kernel) (val225 V0)).trans (val225_main_arg0 V0)
theorem val226_main_arg1 (V0 : Valuation τ sig (Elt Ideal)) : val226 V0 (Proc.devRef .tc main_arg1) = aA V0 :=
  (after_keep _ 10 stepOps225_ok main_arg1 (by decide +kernel) (val225 V0)).trans (val225_main_arg1 V0)
theorem val226_main_arg2 (V0 : Valuation τ sig (Elt Ideal)) : val226 V0 (Proc.devRef .tc main_arg2) = aB V0 :=
  (after_keep _ 10 stepOps225_ok main_arg2 (by decide +kernel) (val225 V0)).trans (val225_main_arg2 V0)
theorem val226_main_arg3 (V0 : Valuation τ sig (Elt Ideal)) : val226 V0 (Proc.devRef .tc main_arg3) = aC V0 :=
  (after_keep _ 10 stepOps225_ok main_arg3 (by decide +kernel) (val225 V0)).trans (val225_main_arg3 V0)
theorem val226_main_v3 (V0 : Valuation τ sig (Elt Ideal)) : val226 V0 (Proc.devRef .tc main_v3) = decay (aA V0) :=
  (after_keep _ 10 stepOps225_ok main_v3 (by decide +kernel) (val225 V0)).trans (val225_main_v3 V0)
theorem val226_h (V0 : Valuation τ sig (Elt Ideal)) : val226 V0 (Proc.devRef .tc main_v4515) = hI (aX V0) (aA V0) (aB V0) 225 := by
  refine ((step225_val (val225 V0)).1).trans ?_
  rw [val225_main_arg0 V0, val225_main_v3 V0, val225_main_arg2 V0, val225_h V0]
  exact (hI_at (aX V0) (aA V0) (aB V0) 224 225 (by decide) rfl).symm
theorem val226_y (V0 : Valuation τ sig (Elt Ideal)) : val226 V0 (Proc.devRef .tc main_v4523) = yJ (aX V0) (aA V0) (aB V0) (aC V0) 226 := by
  refine ((step225_val (val225 V0)).2).trans ?_
  rw [val225_main_arg0 V0, val225_main_v3 V0, val225_main_arg2 V0, val225_main_arg3 V0, val225_h V0, val225_y V0]
  rw [← hI_at (aX V0) (aA V0) (aB V0) 224 225 (by decide) rfl]
  exact (yJ_at (aX V0) (aA V0) (aB V0) (aC V0) 225 226 (by decide) rfl).symm
/-- The contents after step 226. -/
def val227 (V0 : Valuation τ sig (Elt Ideal)) : Valuation τ sig (Elt Ideal) := after (stepOps226 (F := Ideal)) (val226 V0)
theorem val227_main_arg0 (V0 : Valuation τ sig (Elt Ideal)) : val227 V0 (Proc.devRef .tc main_arg0) = aX V0 :=
  (after_keep _ 10 stepOps226_ok main_arg0 (by decide +kernel) (val226 V0)).trans (val226_main_arg0 V0)
theorem val227_main_arg1 (V0 : Valuation τ sig (Elt Ideal)) : val227 V0 (Proc.devRef .tc main_arg1) = aA V0 :=
  (after_keep _ 10 stepOps226_ok main_arg1 (by decide +kernel) (val226 V0)).trans (val226_main_arg1 V0)
theorem val227_main_arg2 (V0 : Valuation τ sig (Elt Ideal)) : val227 V0 (Proc.devRef .tc main_arg2) = aB V0 :=
  (after_keep _ 10 stepOps226_ok main_arg2 (by decide +kernel) (val226 V0)).trans (val226_main_arg2 V0)
theorem val227_main_arg3 (V0 : Valuation τ sig (Elt Ideal)) : val227 V0 (Proc.devRef .tc main_arg3) = aC V0 :=
  (after_keep _ 10 stepOps226_ok main_arg3 (by decide +kernel) (val226 V0)).trans (val226_main_arg3 V0)
theorem val227_main_v3 (V0 : Valuation τ sig (Elt Ideal)) : val227 V0 (Proc.devRef .tc main_v3) = decay (aA V0) :=
  (after_keep _ 10 stepOps226_ok main_v3 (by decide +kernel) (val226 V0)).trans (val226_main_v3 V0)
theorem val227_h (V0 : Valuation τ sig (Elt Ideal)) : val227 V0 (Proc.devRef .tc main_v4535) = hI (aX V0) (aA V0) (aB V0) 226 := by
  refine ((step226_val (val226 V0)).1).trans ?_
  rw [val226_main_arg0 V0, val226_main_v3 V0, val226_main_arg2 V0, val226_h V0]
  exact (hI_at (aX V0) (aA V0) (aB V0) 225 226 (by decide) rfl).symm
theorem val227_y (V0 : Valuation τ sig (Elt Ideal)) : val227 V0 (Proc.devRef .tc main_v4543) = yJ (aX V0) (aA V0) (aB V0) (aC V0) 227 := by
  refine ((step226_val (val226 V0)).2).trans ?_
  rw [val226_main_arg0 V0, val226_main_v3 V0, val226_main_arg2 V0, val226_main_arg3 V0, val226_h V0, val226_y V0]
  rw [← hI_at (aX V0) (aA V0) (aB V0) 225 226 (by decide) rfl]
  exact (yJ_at (aX V0) (aA V0) (aB V0) (aC V0) 226 227 (by decide) rfl).symm
/-- The contents after step 227. -/
def val228 (V0 : Valuation τ sig (Elt Ideal)) : Valuation τ sig (Elt Ideal) := after (stepOps227 (F := Ideal)) (val227 V0)
theorem val228_main_arg0 (V0 : Valuation τ sig (Elt Ideal)) : val228 V0 (Proc.devRef .tc main_arg0) = aX V0 :=
  (after_keep _ 10 stepOps227_ok main_arg0 (by decide +kernel) (val227 V0)).trans (val227_main_arg0 V0)
theorem val228_main_arg1 (V0 : Valuation τ sig (Elt Ideal)) : val228 V0 (Proc.devRef .tc main_arg1) = aA V0 :=
  (after_keep _ 10 stepOps227_ok main_arg1 (by decide +kernel) (val227 V0)).trans (val227_main_arg1 V0)
theorem val228_main_arg2 (V0 : Valuation τ sig (Elt Ideal)) : val228 V0 (Proc.devRef .tc main_arg2) = aB V0 :=
  (after_keep _ 10 stepOps227_ok main_arg2 (by decide +kernel) (val227 V0)).trans (val227_main_arg2 V0)
theorem val228_main_arg3 (V0 : Valuation τ sig (Elt Ideal)) : val228 V0 (Proc.devRef .tc main_arg3) = aC V0 :=
  (after_keep _ 10 stepOps227_ok main_arg3 (by decide +kernel) (val227 V0)).trans (val227_main_arg3 V0)
theorem val228_main_v3 (V0 : Valuation τ sig (Elt Ideal)) : val228 V0 (Proc.devRef .tc main_v3) = decay (aA V0) :=
  (after_keep _ 10 stepOps227_ok main_v3 (by decide +kernel) (val227 V0)).trans (val227_main_v3 V0)
theorem val228_h (V0 : Valuation τ sig (Elt Ideal)) : val228 V0 (Proc.devRef .tc main_v4555) = hI (aX V0) (aA V0) (aB V0) 227 := by
  refine ((step227_val (val227 V0)).1).trans ?_
  rw [val227_main_arg0 V0, val227_main_v3 V0, val227_main_arg2 V0, val227_h V0]
  exact (hI_at (aX V0) (aA V0) (aB V0) 226 227 (by decide) rfl).symm
theorem val228_y (V0 : Valuation τ sig (Elt Ideal)) : val228 V0 (Proc.devRef .tc main_v4563) = yJ (aX V0) (aA V0) (aB V0) (aC V0) 228 := by
  refine ((step227_val (val227 V0)).2).trans ?_
  rw [val227_main_arg0 V0, val227_main_v3 V0, val227_main_arg2 V0, val227_main_arg3 V0, val227_h V0, val227_y V0]
  rw [← hI_at (aX V0) (aA V0) (aB V0) 226 227 (by decide) rfl]
  exact (yJ_at (aX V0) (aA V0) (aB V0) (aC V0) 227 228 (by decide) rfl).symm
/-- The contents after step 228. -/
def val229 (V0 : Valuation τ sig (Elt Ideal)) : Valuation τ sig (Elt Ideal) := after (stepOps228 (F := Ideal)) (val228 V0)
theorem val229_main_arg0 (V0 : Valuation τ sig (Elt Ideal)) : val229 V0 (Proc.devRef .tc main_arg0) = aX V0 :=
  (after_keep _ 10 stepOps228_ok main_arg0 (by decide +kernel) (val228 V0)).trans (val228_main_arg0 V0)
theorem val229_main_arg1 (V0 : Valuation τ sig (Elt Ideal)) : val229 V0 (Proc.devRef .tc main_arg1) = aA V0 :=
  (after_keep _ 10 stepOps228_ok main_arg1 (by decide +kernel) (val228 V0)).trans (val228_main_arg1 V0)
theorem val229_main_arg2 (V0 : Valuation τ sig (Elt Ideal)) : val229 V0 (Proc.devRef .tc main_arg2) = aB V0 :=
  (after_keep _ 10 stepOps228_ok main_arg2 (by decide +kernel) (val228 V0)).trans (val228_main_arg2 V0)
theorem val229_main_arg3 (V0 : Valuation τ sig (Elt Ideal)) : val229 V0 (Proc.devRef .tc main_arg3) = aC V0 :=
  (after_keep _ 10 stepOps228_ok main_arg3 (by decide +kernel) (val228 V0)).trans (val228_main_arg3 V0)
theorem val229_main_v3 (V0 : Valuation τ sig (Elt Ideal)) : val229 V0 (Proc.devRef .tc main_v3) = decay (aA V0) :=
  (after_keep _ 10 stepOps228_ok main_v3 (by decide +kernel) (val228 V0)).trans (val228_main_v3 V0)
theorem val229_h (V0 : Valuation τ sig (Elt Ideal)) : val229 V0 (Proc.devRef .tc main_v4575) = hI (aX V0) (aA V0) (aB V0) 228 := by
  refine ((step228_val (val228 V0)).1).trans ?_
  rw [val228_main_arg0 V0, val228_main_v3 V0, val228_main_arg2 V0, val228_h V0]
  exact (hI_at (aX V0) (aA V0) (aB V0) 227 228 (by decide) rfl).symm
theorem val229_y (V0 : Valuation τ sig (Elt Ideal)) : val229 V0 (Proc.devRef .tc main_v4583) = yJ (aX V0) (aA V0) (aB V0) (aC V0) 229 := by
  refine ((step228_val (val228 V0)).2).trans ?_
  rw [val228_main_arg0 V0, val228_main_v3 V0, val228_main_arg2 V0, val228_main_arg3 V0, val228_h V0, val228_y V0]
  rw [← hI_at (aX V0) (aA V0) (aB V0) 227 228 (by decide) rfl]
  exact (yJ_at (aX V0) (aA V0) (aB V0) (aC V0) 228 229 (by decide) rfl).symm
/-- The contents after step 229. -/
def val230 (V0 : Valuation τ sig (Elt Ideal)) : Valuation τ sig (Elt Ideal) := after (stepOps229 (F := Ideal)) (val229 V0)
theorem val230_main_arg0 (V0 : Valuation τ sig (Elt Ideal)) : val230 V0 (Proc.devRef .tc main_arg0) = aX V0 :=
  (after_keep _ 10 stepOps229_ok main_arg0 (by decide +kernel) (val229 V0)).trans (val229_main_arg0 V0)
theorem val230_main_arg1 (V0 : Valuation τ sig (Elt Ideal)) : val230 V0 (Proc.devRef .tc main_arg1) = aA V0 :=
  (after_keep _ 10 stepOps229_ok main_arg1 (by decide +kernel) (val229 V0)).trans (val229_main_arg1 V0)
theorem val230_main_arg2 (V0 : Valuation τ sig (Elt Ideal)) : val230 V0 (Proc.devRef .tc main_arg2) = aB V0 :=
  (after_keep _ 10 stepOps229_ok main_arg2 (by decide +kernel) (val229 V0)).trans (val229_main_arg2 V0)
theorem val230_main_arg3 (V0 : Valuation τ sig (Elt Ideal)) : val230 V0 (Proc.devRef .tc main_arg3) = aC V0 :=
  (after_keep _ 10 stepOps229_ok main_arg3 (by decide +kernel) (val229 V0)).trans (val229_main_arg3 V0)
theorem val230_main_v3 (V0 : Valuation τ sig (Elt Ideal)) : val230 V0 (Proc.devRef .tc main_v3) = decay (aA V0) :=
  (after_keep _ 10 stepOps229_ok main_v3 (by decide +kernel) (val229 V0)).trans (val229_main_v3 V0)
theorem val230_h (V0 : Valuation τ sig (Elt Ideal)) : val230 V0 (Proc.devRef .tc main_v4595) = hI (aX V0) (aA V0) (aB V0) 229 := by
  refine ((step229_val (val229 V0)).1).trans ?_
  rw [val229_main_arg0 V0, val229_main_v3 V0, val229_main_arg2 V0, val229_h V0]
  exact (hI_at (aX V0) (aA V0) (aB V0) 228 229 (by decide) rfl).symm
theorem val230_y (V0 : Valuation τ sig (Elt Ideal)) : val230 V0 (Proc.devRef .tc main_v4603) = yJ (aX V0) (aA V0) (aB V0) (aC V0) 230 := by
  refine ((step229_val (val229 V0)).2).trans ?_
  rw [val229_main_arg0 V0, val229_main_v3 V0, val229_main_arg2 V0, val229_main_arg3 V0, val229_h V0, val229_y V0]
  rw [← hI_at (aX V0) (aA V0) (aB V0) 228 229 (by decide) rfl]
  exact (yJ_at (aX V0) (aA V0) (aB V0) (aC V0) 229 230 (by decide) rfl).symm
/-- The contents after step 230. -/
def val231 (V0 : Valuation τ sig (Elt Ideal)) : Valuation τ sig (Elt Ideal) := after (stepOps230 (F := Ideal)) (val230 V0)
theorem val231_main_arg0 (V0 : Valuation τ sig (Elt Ideal)) : val231 V0 (Proc.devRef .tc main_arg0) = aX V0 :=
  (after_keep _ 10 stepOps230_ok main_arg0 (by decide +kernel) (val230 V0)).trans (val230_main_arg0 V0)
theorem val231_main_arg1 (V0 : Valuation τ sig (Elt Ideal)) : val231 V0 (Proc.devRef .tc main_arg1) = aA V0 :=
  (after_keep _ 10 stepOps230_ok main_arg1 (by decide +kernel) (val230 V0)).trans (val230_main_arg1 V0)
theorem val231_main_arg2 (V0 : Valuation τ sig (Elt Ideal)) : val231 V0 (Proc.devRef .tc main_arg2) = aB V0 :=
  (after_keep _ 10 stepOps230_ok main_arg2 (by decide +kernel) (val230 V0)).trans (val230_main_arg2 V0)
theorem val231_main_arg3 (V0 : Valuation τ sig (Elt Ideal)) : val231 V0 (Proc.devRef .tc main_arg3) = aC V0 :=
  (after_keep _ 10 stepOps230_ok main_arg3 (by decide +kernel) (val230 V0)).trans (val230_main_arg3 V0)
theorem val231_main_v3 (V0 : Valuation τ sig (Elt Ideal)) : val231 V0 (Proc.devRef .tc main_v3) = decay (aA V0) :=
  (after_keep _ 10 stepOps230_ok main_v3 (by decide +kernel) (val230 V0)).trans (val230_main_v3 V0)
theorem val231_h (V0 : Valuation τ sig (Elt Ideal)) : val231 V0 (Proc.devRef .tc main_v4615) = hI (aX V0) (aA V0) (aB V0) 230 := by
  refine ((step230_val (val230 V0)).1).trans ?_
  rw [val230_main_arg0 V0, val230_main_v3 V0, val230_main_arg2 V0, val230_h V0]
  exact (hI_at (aX V0) (aA V0) (aB V0) 229 230 (by decide) rfl).symm
theorem val231_y (V0 : Valuation τ sig (Elt Ideal)) : val231 V0 (Proc.devRef .tc main_v4623) = yJ (aX V0) (aA V0) (aB V0) (aC V0) 231 := by
  refine ((step230_val (val230 V0)).2).trans ?_
  rw [val230_main_arg0 V0, val230_main_v3 V0, val230_main_arg2 V0, val230_main_arg3 V0, val230_h V0, val230_y V0]
  rw [← hI_at (aX V0) (aA V0) (aB V0) 229 230 (by decide) rfl]
  exact (yJ_at (aX V0) (aA V0) (aB V0) (aC V0) 230 231 (by decide) rfl).symm
/-- The contents after step 231. -/
def val232 (V0 : Valuation τ sig (Elt Ideal)) : Valuation τ sig (Elt Ideal) := after (stepOps231 (F := Ideal)) (val231 V0)
theorem val232_main_arg0 (V0 : Valuation τ sig (Elt Ideal)) : val232 V0 (Proc.devRef .tc main_arg0) = aX V0 :=
  (after_keep _ 10 stepOps231_ok main_arg0 (by decide +kernel) (val231 V0)).trans (val231_main_arg0 V0)
theorem val232_main_arg1 (V0 : Valuation τ sig (Elt Ideal)) : val232 V0 (Proc.devRef .tc main_arg1) = aA V0 :=
  (after_keep _ 10 stepOps231_ok main_arg1 (by decide +kernel) (val231 V0)).trans (val231_main_arg1 V0)
theorem val232_main_arg2 (V0 : Valuation τ sig (Elt Ideal)) : val232 V0 (Proc.devRef .tc main_arg2) = aB V0 :=
  (after_keep _ 10 stepOps231_ok main_arg2 (by decide +kernel) (val231 V0)).trans (val231_main_arg2 V0)
theorem val232_main_arg3 (V0 : Valuation τ sig (Elt Ideal)) : val232 V0 (Proc.devRef .tc main_arg3) = aC V0 :=
  (after_keep _ 10 stepOps231_ok main_arg3 (by decide +kernel) (val231 V0)).trans (val231_main_arg3 V0)
theorem val232_main_v3 (V0 : Valuation τ sig (Elt Ideal)) : val232 V0 (Proc.devRef .tc main_v3) = decay (aA V0) :=
  (after_keep _ 10 stepOps231_ok main_v3 (by decide +kernel) (val231 V0)).trans (val231_main_v3 V0)
theorem val232_h (V0 : Valuation τ sig (Elt Ideal)) : val232 V0 (Proc.devRef .tc main_v4635) = hI (aX V0) (aA V0) (aB V0) 231 := by
  refine ((step231_val (val231 V0)).1).trans ?_
  rw [val231_main_arg0 V0, val231_main_v3 V0, val231_main_arg2 V0, val231_h V0]
  exact (hI_at (aX V0) (aA V0) (aB V0) 230 231 (by decide) rfl).symm
theorem val232_y (V0 : Valuation τ sig (Elt Ideal)) : val232 V0 (Proc.devRef .tc main_v4643) = yJ (aX V0) (aA V0) (aB V0) (aC V0) 232 := by
  refine ((step231_val (val231 V0)).2).trans ?_
  rw [val231_main_arg0 V0, val231_main_v3 V0, val231_main_arg2 V0, val231_main_arg3 V0, val231_h V0, val231_y V0]
  rw [← hI_at (aX V0) (aA V0) (aB V0) 230 231 (by decide) rfl]
  exact (yJ_at (aX V0) (aA V0) (aB V0) (aC V0) 231 232 (by decide) rfl).symm
/-- The contents after step 232. -/
def val233 (V0 : Valuation τ sig (Elt Ideal)) : Valuation τ sig (Elt Ideal) := after (stepOps232 (F := Ideal)) (val232 V0)
theorem val233_main_arg0 (V0 : Valuation τ sig (Elt Ideal)) : val233 V0 (Proc.devRef .tc main_arg0) = aX V0 :=
  (after_keep _ 10 stepOps232_ok main_arg0 (by decide +kernel) (val232 V0)).trans (val232_main_arg0 V0)
theorem val233_main_arg1 (V0 : Valuation τ sig (Elt Ideal)) : val233 V0 (Proc.devRef .tc main_arg1) = aA V0 :=
  (after_keep _ 10 stepOps232_ok main_arg1 (by decide +kernel) (val232 V0)).trans (val232_main_arg1 V0)
theorem val233_main_arg2 (V0 : Valuation τ sig (Elt Ideal)) : val233 V0 (Proc.devRef .tc main_arg2) = aB V0 :=
  (after_keep _ 10 stepOps232_ok main_arg2 (by decide +kernel) (val232 V0)).trans (val232_main_arg2 V0)
theorem val233_main_arg3 (V0 : Valuation τ sig (Elt Ideal)) : val233 V0 (Proc.devRef .tc main_arg3) = aC V0 :=
  (after_keep _ 10 stepOps232_ok main_arg3 (by decide +kernel) (val232 V0)).trans (val232_main_arg3 V0)
theorem val233_main_v3 (V0 : Valuation τ sig (Elt Ideal)) : val233 V0 (Proc.devRef .tc main_v3) = decay (aA V0) :=
  (after_keep _ 10 stepOps232_ok main_v3 (by decide +kernel) (val232 V0)).trans (val232_main_v3 V0)
theorem val233_h (V0 : Valuation τ sig (Elt Ideal)) : val233 V0 (Proc.devRef .tc main_v4655) = hI (aX V0) (aA V0) (aB V0) 232 := by
  refine ((step232_val (val232 V0)).1).trans ?_
  rw [val232_main_arg0 V0, val232_main_v3 V0, val232_main_arg2 V0, val232_h V0]
  exact (hI_at (aX V0) (aA V0) (aB V0) 231 232 (by decide) rfl).symm
theorem val233_y (V0 : Valuation τ sig (Elt Ideal)) : val233 V0 (Proc.devRef .tc main_v4663) = yJ (aX V0) (aA V0) (aB V0) (aC V0) 233 := by
  refine ((step232_val (val232 V0)).2).trans ?_
  rw [val232_main_arg0 V0, val232_main_v3 V0, val232_main_arg2 V0, val232_main_arg3 V0, val232_h V0, val232_y V0]
  rw [← hI_at (aX V0) (aA V0) (aB V0) 231 232 (by decide) rfl]
  exact (yJ_at (aX V0) (aA V0) (aB V0) (aC V0) 232 233 (by decide) rfl).symm
/-- The contents after step 233. -/
def val234 (V0 : Valuation τ sig (Elt Ideal)) : Valuation τ sig (Elt Ideal) := after (stepOps233 (F := Ideal)) (val233 V0)
theorem val234_main_arg0 (V0 : Valuation τ sig (Elt Ideal)) : val234 V0 (Proc.devRef .tc main_arg0) = aX V0 :=
  (after_keep _ 10 stepOps233_ok main_arg0 (by decide +kernel) (val233 V0)).trans (val233_main_arg0 V0)
theorem val234_main_arg1 (V0 : Valuation τ sig (Elt Ideal)) : val234 V0 (Proc.devRef .tc main_arg1) = aA V0 :=
  (after_keep _ 10 stepOps233_ok main_arg1 (by decide +kernel) (val233 V0)).trans (val233_main_arg1 V0)
theorem val234_main_arg2 (V0 : Valuation τ sig (Elt Ideal)) : val234 V0 (Proc.devRef .tc main_arg2) = aB V0 :=
  (after_keep _ 10 stepOps233_ok main_arg2 (by decide +kernel) (val233 V0)).trans (val233_main_arg2 V0)
theorem val234_main_arg3 (V0 : Valuation τ sig (Elt Ideal)) : val234 V0 (Proc.devRef .tc main_arg3) = aC V0 :=
  (after_keep _ 10 stepOps233_ok main_arg3 (by decide +kernel) (val233 V0)).trans (val233_main_arg3 V0)
theorem val234_main_v3 (V0 : Valuation τ sig (Elt Ideal)) : val234 V0 (Proc.devRef .tc main_v3) = decay (aA V0) :=
  (after_keep _ 10 stepOps233_ok main_v3 (by decide +kernel) (val233 V0)).trans (val233_main_v3 V0)
theorem val234_h (V0 : Valuation τ sig (Elt Ideal)) : val234 V0 (Proc.devRef .tc main_v4675) = hI (aX V0) (aA V0) (aB V0) 233 := by
  refine ((step233_val (val233 V0)).1).trans ?_
  rw [val233_main_arg0 V0, val233_main_v3 V0, val233_main_arg2 V0, val233_h V0]
  exact (hI_at (aX V0) (aA V0) (aB V0) 232 233 (by decide) rfl).symm
theorem val234_y (V0 : Valuation τ sig (Elt Ideal)) : val234 V0 (Proc.devRef .tc main_v4683) = yJ (aX V0) (aA V0) (aB V0) (aC V0) 234 := by
  refine ((step233_val (val233 V0)).2).trans ?_
  rw [val233_main_arg0 V0, val233_main_v3 V0, val233_main_arg2 V0, val233_main_arg3 V0, val233_h V0, val233_y V0]
  rw [← hI_at (aX V0) (aA V0) (aB V0) 232 233 (by decide) rfl]
  exact (yJ_at (aX V0) (aA V0) (aB V0) (aC V0) 233 234 (by decide) rfl).symm
/-- The contents after step 234. -/
def val235 (V0 : Valuation τ sig (Elt Ideal)) : Valuation τ sig (Elt Ideal) := after (stepOps234 (F := Ideal)) (val234 V0)
theorem val235_main_arg0 (V0 : Valuation τ sig (Elt Ideal)) : val235 V0 (Proc.devRef .tc main_arg0) = aX V0 :=
  (after_keep _ 10 stepOps234_ok main_arg0 (by decide +kernel) (val234 V0)).trans (val234_main_arg0 V0)
theorem val235_main_arg1 (V0 : Valuation τ sig (Elt Ideal)) : val235 V0 (Proc.devRef .tc main_arg1) = aA V0 :=
  (after_keep _ 10 stepOps234_ok main_arg1 (by decide +kernel) (val234 V0)).trans (val234_main_arg1 V0)
theorem val235_main_arg2 (V0 : Valuation τ sig (Elt Ideal)) : val235 V0 (Proc.devRef .tc main_arg2) = aB V0 :=
  (after_keep _ 10 stepOps234_ok main_arg2 (by decide +kernel) (val234 V0)).trans (val234_main_arg2 V0)
theorem val235_main_arg3 (V0 : Valuation τ sig (Elt Ideal)) : val235 V0 (Proc.devRef .tc main_arg3) = aC V0 :=
  (after_keep _ 10 stepOps234_ok main_arg3 (by decide +kernel) (val234 V0)).trans (val234_main_arg3 V0)
theorem val235_main_v3 (V0 : Valuation τ sig (Elt Ideal)) : val235 V0 (Proc.devRef .tc main_v3) = decay (aA V0) :=
  (after_keep _ 10 stepOps234_ok main_v3 (by decide +kernel) (val234 V0)).trans (val234_main_v3 V0)
theorem val235_h (V0 : Valuation τ sig (Elt Ideal)) : val235 V0 (Proc.devRef .tc main_v4695) = hI (aX V0) (aA V0) (aB V0) 234 := by
  refine ((step234_val (val234 V0)).1).trans ?_
  rw [val234_main_arg0 V0, val234_main_v3 V0, val234_main_arg2 V0, val234_h V0]
  exact (hI_at (aX V0) (aA V0) (aB V0) 233 234 (by decide) rfl).symm
theorem val235_y (V0 : Valuation τ sig (Elt Ideal)) : val235 V0 (Proc.devRef .tc main_v4703) = yJ (aX V0) (aA V0) (aB V0) (aC V0) 235 := by
  refine ((step234_val (val234 V0)).2).trans ?_
  rw [val234_main_arg0 V0, val234_main_v3 V0, val234_main_arg2 V0, val234_main_arg3 V0, val234_h V0, val234_y V0]
  rw [← hI_at (aX V0) (aA V0) (aB V0) 233 234 (by decide) rfl]
  exact (yJ_at (aX V0) (aA V0) (aB V0) (aC V0) 234 235 (by decide) rfl).symm
/-- The contents after step 235. -/
def val236 (V0 : Valuation τ sig (Elt Ideal)) : Valuation τ sig (Elt Ideal) := after (stepOps235 (F := Ideal)) (val235 V0)
theorem val236_main_arg0 (V0 : Valuation τ sig (Elt Ideal)) : val236 V0 (Proc.devRef .tc main_arg0) = aX V0 :=
  (after_keep _ 10 stepOps235_ok main_arg0 (by decide +kernel) (val235 V0)).trans (val235_main_arg0 V0)
theorem val236_main_arg1 (V0 : Valuation τ sig (Elt Ideal)) : val236 V0 (Proc.devRef .tc main_arg1) = aA V0 :=
  (after_keep _ 10 stepOps235_ok main_arg1 (by decide +kernel) (val235 V0)).trans (val235_main_arg1 V0)
theorem val236_main_arg2 (V0 : Valuation τ sig (Elt Ideal)) : val236 V0 (Proc.devRef .tc main_arg2) = aB V0 :=
  (after_keep _ 10 stepOps235_ok main_arg2 (by decide +kernel) (val235 V0)).trans (val235_main_arg2 V0)
theorem val236_main_arg3 (V0 : Valuation τ sig (Elt Ideal)) : val236 V0 (Proc.devRef .tc main_arg3) = aC V0 :=
  (after_keep _ 10 stepOps235_ok main_arg3 (by decide +kernel) (val235 V0)).trans (val235_main_arg3 V0)
theorem val236_main_v3 (V0 : Valuation τ sig (Elt Ideal)) : val236 V0 (Proc.devRef .tc main_v3) = decay (aA V0) :=
  (after_keep _ 10 stepOps235_ok main_v3 (by decide +kernel) (val235 V0)).trans (val235_main_v3 V0)
theorem val236_h (V0 : Valuation τ sig (Elt Ideal)) : val236 V0 (Proc.devRef .tc main_v4715) = hI (aX V0) (aA V0) (aB V0) 235 := by
  refine ((step235_val (val235 V0)).1).trans ?_
  rw [val235_main_arg0 V0, val235_main_v3 V0, val235_main_arg2 V0, val235_h V0]
  exact (hI_at (aX V0) (aA V0) (aB V0) 234 235 (by decide) rfl).symm
theorem val236_y (V0 : Valuation τ sig (Elt Ideal)) : val236 V0 (Proc.devRef .tc main_v4723) = yJ (aX V0) (aA V0) (aB V0) (aC V0) 236 := by
  refine ((step235_val (val235 V0)).2).trans ?_
  rw [val235_main_arg0 V0, val235_main_v3 V0, val235_main_arg2 V0, val235_main_arg3 V0, val235_h V0, val235_y V0]
  rw [← hI_at (aX V0) (aA V0) (aB V0) 234 235 (by decide) rfl]
  exact (yJ_at (aX V0) (aA V0) (aB V0) (aC V0) 235 236 (by decide) rfl).symm
/-- The contents after step 236. -/
def val237 (V0 : Valuation τ sig (Elt Ideal)) : Valuation τ sig (Elt Ideal) := after (stepOps236 (F := Ideal)) (val236 V0)
theorem val237_main_arg0 (V0 : Valuation τ sig (Elt Ideal)) : val237 V0 (Proc.devRef .tc main_arg0) = aX V0 :=
  (after_keep _ 10 stepOps236_ok main_arg0 (by decide +kernel) (val236 V0)).trans (val236_main_arg0 V0)
theorem val237_main_arg1 (V0 : Valuation τ sig (Elt Ideal)) : val237 V0 (Proc.devRef .tc main_arg1) = aA V0 :=
  (after_keep _ 10 stepOps236_ok main_arg1 (by decide +kernel) (val236 V0)).trans (val236_main_arg1 V0)
theorem val237_main_arg2 (V0 : Valuation τ sig (Elt Ideal)) : val237 V0 (Proc.devRef .tc main_arg2) = aB V0 :=
  (after_keep _ 10 stepOps236_ok main_arg2 (by decide +kernel) (val236 V0)).trans (val236_main_arg2 V0)
theorem val237_main_arg3 (V0 : Valuation τ sig (Elt Ideal)) : val237 V0 (Proc.devRef .tc main_arg3) = aC V0 :=
  (after_keep _ 10 stepOps236_ok main_arg3 (by decide +kernel) (val236 V0)).trans (val236_main_arg3 V0)
theorem val237_main_v3 (V0 : Valuation τ sig (Elt Ideal)) : val237 V0 (Proc.devRef .tc main_v3) = decay (aA V0) :=
  (after_keep _ 10 stepOps236_ok main_v3 (by decide +kernel) (val236 V0)).trans (val236_main_v3 V0)
theorem val237_h (V0 : Valuation τ sig (Elt Ideal)) : val237 V0 (Proc.devRef .tc main_v4735) = hI (aX V0) (aA V0) (aB V0) 236 := by
  refine ((step236_val (val236 V0)).1).trans ?_
  rw [val236_main_arg0 V0, val236_main_v3 V0, val236_main_arg2 V0, val236_h V0]
  exact (hI_at (aX V0) (aA V0) (aB V0) 235 236 (by decide) rfl).symm
theorem val237_y (V0 : Valuation τ sig (Elt Ideal)) : val237 V0 (Proc.devRef .tc main_v4743) = yJ (aX V0) (aA V0) (aB V0) (aC V0) 237 := by
  refine ((step236_val (val236 V0)).2).trans ?_
  rw [val236_main_arg0 V0, val236_main_v3 V0, val236_main_arg2 V0, val236_main_arg3 V0, val236_h V0, val236_y V0]
  rw [← hI_at (aX V0) (aA V0) (aB V0) 235 236 (by decide) rfl]
  exact (yJ_at (aX V0) (aA V0) (aB V0) (aC V0) 236 237 (by decide) rfl).symm
/-- The contents after step 237. -/
def val238 (V0 : Valuation τ sig (Elt Ideal)) : Valuation τ sig (Elt Ideal) := after (stepOps237 (F := Ideal)) (val237 V0)
theorem val238_main_arg0 (V0 : Valuation τ sig (Elt Ideal)) : val238 V0 (Proc.devRef .tc main_arg0) = aX V0 :=
  (after_keep _ 10 stepOps237_ok main_arg0 (by decide +kernel) (val237 V0)).trans (val237_main_arg0 V0)
theorem val238_main_arg1 (V0 : Valuation τ sig (Elt Ideal)) : val238 V0 (Proc.devRef .tc main_arg1) = aA V0 :=
  (after_keep _ 10 stepOps237_ok main_arg1 (by decide +kernel) (val237 V0)).trans (val237_main_arg1 V0)
theorem val238_main_arg2 (V0 : Valuation τ sig (Elt Ideal)) : val238 V0 (Proc.devRef .tc main_arg2) = aB V0 :=
  (after_keep _ 10 stepOps237_ok main_arg2 (by decide +kernel) (val237 V0)).trans (val237_main_arg2 V0)
theorem val238_main_arg3 (V0 : Valuation τ sig (Elt Ideal)) : val238 V0 (Proc.devRef .tc main_arg3) = aC V0 :=
  (after_keep _ 10 stepOps237_ok main_arg3 (by decide +kernel) (val237 V0)).trans (val237_main_arg3 V0)
theorem val238_main_v3 (V0 : Valuation τ sig (Elt Ideal)) : val238 V0 (Proc.devRef .tc main_v3) = decay (aA V0) :=
  (after_keep _ 10 stepOps237_ok main_v3 (by decide +kernel) (val237 V0)).trans (val237_main_v3 V0)
theorem val238_h (V0 : Valuation τ sig (Elt Ideal)) : val238 V0 (Proc.devRef .tc main_v4755) = hI (aX V0) (aA V0) (aB V0) 237 := by
  refine ((step237_val (val237 V0)).1).trans ?_
  rw [val237_main_arg0 V0, val237_main_v3 V0, val237_main_arg2 V0, val237_h V0]
  exact (hI_at (aX V0) (aA V0) (aB V0) 236 237 (by decide) rfl).symm
theorem val238_y (V0 : Valuation τ sig (Elt Ideal)) : val238 V0 (Proc.devRef .tc main_v4763) = yJ (aX V0) (aA V0) (aB V0) (aC V0) 238 := by
  refine ((step237_val (val237 V0)).2).trans ?_
  rw [val237_main_arg0 V0, val237_main_v3 V0, val237_main_arg2 V0, val237_main_arg3 V0, val237_h V0, val237_y V0]
  rw [← hI_at (aX V0) (aA V0) (aB V0) 236 237 (by decide) rfl]
  exact (yJ_at (aX V0) (aA V0) (aB V0) (aC V0) 237 238 (by decide) rfl).symm
/-- The contents after step 238. -/
def val239 (V0 : Valuation τ sig (Elt Ideal)) : Valuation τ sig (Elt Ideal) := after (stepOps238 (F := Ideal)) (val238 V0)
theorem val239_main_arg0 (V0 : Valuation τ sig (Elt Ideal)) : val239 V0 (Proc.devRef .tc main_arg0) = aX V0 :=
  (after_keep _ 10 stepOps238_ok main_arg0 (by decide +kernel) (val238 V0)).trans (val238_main_arg0 V0)
theorem val239_main_arg1 (V0 : Valuation τ sig (Elt Ideal)) : val239 V0 (Proc.devRef .tc main_arg1) = aA V0 :=
  (after_keep _ 10 stepOps238_ok main_arg1 (by decide +kernel) (val238 V0)).trans (val238_main_arg1 V0)
theorem val239_main_arg2 (V0 : Valuation τ sig (Elt Ideal)) : val239 V0 (Proc.devRef .tc main_arg2) = aB V0 :=
  (after_keep _ 10 stepOps238_ok main_arg2 (by decide +kernel) (val238 V0)).trans (val238_main_arg2 V0)
theorem val239_main_arg3 (V0 : Valuation τ sig (Elt Ideal)) : val239 V0 (Proc.devRef .tc main_arg3) = aC V0 :=
  (after_keep _ 10 stepOps238_ok main_arg3 (by decide +kernel) (val238 V0)).trans (val238_main_arg3 V0)
theorem val239_main_v3 (V0 : Valuation τ sig (Elt Ideal)) : val239 V0 (Proc.devRef .tc main_v3) = decay (aA V0) :=
  (after_keep _ 10 stepOps238_ok main_v3 (by decide +kernel) (val238 V0)).trans (val238_main_v3 V0)
theorem val239_h (V0 : Valuation τ sig (Elt Ideal)) : val239 V0 (Proc.devRef .tc main_v4775) = hI (aX V0) (aA V0) (aB V0) 238 := by
  refine ((step238_val (val238 V0)).1).trans ?_
  rw [val238_main_arg0 V0, val238_main_v3 V0, val238_main_arg2 V0, val238_h V0]
  exact (hI_at (aX V0) (aA V0) (aB V0) 237 238 (by decide) rfl).symm
theorem val239_y (V0 : Valuation τ sig (Elt Ideal)) : val239 V0 (Proc.devRef .tc main_v4783) = yJ (aX V0) (aA V0) (aB V0) (aC V0) 239 := by
  refine ((step238_val (val238 V0)).2).trans ?_
  rw [val238_main_arg0 V0, val238_main_v3 V0, val238_main_arg2 V0, val238_main_arg3 V0, val238_h V0, val238_y V0]
  rw [← hI_at (aX V0) (aA V0) (aB V0) 237 238 (by decide) rfl]
  exact (yJ_at (aX V0) (aA V0) (aB V0) (aC V0) 238 239 (by decide) rfl).symm
/-- The contents after step 239. -/
def val240 (V0 : Valuation τ sig (Elt Ideal)) : Valuation τ sig (Elt Ideal) := after (stepOps239 (F := Ideal)) (val239 V0)
theorem val240_main_arg0 (V0 : Valuation τ sig (Elt Ideal)) : val240 V0 (Proc.devRef .tc main_arg0) = aX V0 :=
  (after_keep _ 10 stepOps239_ok main_arg0 (by decide +kernel) (val239 V0)).trans (val239_main_arg0 V0)
theorem val240_main_arg1 (V0 : Valuation τ sig (Elt Ideal)) : val240 V0 (Proc.devRef .tc main_arg1) = aA V0 :=
  (after_keep _ 10 stepOps239_ok main_arg1 (by decide +kernel) (val239 V0)).trans (val239_main_arg1 V0)
theorem val240_main_arg2 (V0 : Valuation τ sig (Elt Ideal)) : val240 V0 (Proc.devRef .tc main_arg2) = aB V0 :=
  (after_keep _ 10 stepOps239_ok main_arg2 (by decide +kernel) (val239 V0)).trans (val239_main_arg2 V0)
theorem val240_main_arg3 (V0 : Valuation τ sig (Elt Ideal)) : val240 V0 (Proc.devRef .tc main_arg3) = aC V0 :=
  (after_keep _ 10 stepOps239_ok main_arg3 (by decide +kernel) (val239 V0)).trans (val239_main_arg3 V0)
theorem val240_main_v3 (V0 : Valuation τ sig (Elt Ideal)) : val240 V0 (Proc.devRef .tc main_v3) = decay (aA V0) :=
  (after_keep _ 10 stepOps239_ok main_v3 (by decide +kernel) (val239 V0)).trans (val239_main_v3 V0)
theorem val240_h (V0 : Valuation τ sig (Elt Ideal)) : val240 V0 (Proc.devRef .tc main_v4795) = hI (aX V0) (aA V0) (aB V0) 239 := by
  refine ((step239_val (val239 V0)).1).trans ?_
  rw [val239_main_arg0 V0, val239_main_v3 V0, val239_main_arg2 V0, val239_h V0]
  exact (hI_at (aX V0) (aA V0) (aB V0) 238 239 (by decide) rfl).symm
theorem val240_y (V0 : Valuation τ sig (Elt Ideal)) : val240 V0 (Proc.devRef .tc main_v4803) = yJ (aX V0) (aA V0) (aB V0) (aC V0) 240 := by
  refine ((step239_val (val239 V0)).2).trans ?_
  rw [val239_main_arg0 V0, val239_main_v3 V0, val239_main_arg2 V0, val239_main_arg3 V0, val239_h V0, val239_y V0]
  rw [← hI_at (aX V0) (aA V0) (aB V0) 238 239 (by decide) rfl]
  exact (yJ_at (aX V0) (aA V0) (aB V0) (aC V0) 239 240 (by decide) rfl).symm
/-- The contents after step 240. -/
def val241 (V0 : Valuation τ sig (Elt Ideal)) : Valuation τ sig (Elt Ideal) := after (stepOps240 (F := Ideal)) (val240 V0)
theorem val241_main_arg0 (V0 : Valuation τ sig (Elt Ideal)) : val241 V0 (Proc.devRef .tc main_arg0) = aX V0 :=
  (after_keep _ 10 stepOps240_ok main_arg0 (by decide +kernel) (val240 V0)).trans (val240_main_arg0 V0)
theorem val241_main_arg1 (V0 : Valuation τ sig (Elt Ideal)) : val241 V0 (Proc.devRef .tc main_arg1) = aA V0 :=
  (after_keep _ 10 stepOps240_ok main_arg1 (by decide +kernel) (val240 V0)).trans (val240_main_arg1 V0)
theorem val241_main_arg2 (V0 : Valuation τ sig (Elt Ideal)) : val241 V0 (Proc.devRef .tc main_arg2) = aB V0 :=
  (after_keep _ 10 stepOps240_ok main_arg2 (by decide +kernel) (val240 V0)).trans (val240_main_arg2 V0)
theorem val241_main_arg3 (V0 : Valuation τ sig (Elt Ideal)) : val241 V0 (Proc.devRef .tc main_arg3) = aC V0 :=
  (after_keep _ 10 stepOps240_ok main_arg3 (by decide +kernel) (val240 V0)).trans (val240_main_arg3 V0)
theorem val241_main_v3 (V0 : Valuation τ sig (Elt Ideal)) : val241 V0 (Proc.devRef .tc main_v3) = decay (aA V0) :=
  (after_keep _ 10 stepOps240_ok main_v3 (by decide +kernel) (val240 V0)).trans (val240_main_v3 V0)
theorem val241_h (V0 : Valuation τ sig (Elt Ideal)) : val241 V0 (Proc.devRef .tc main_v4815) = hI (aX V0) (aA V0) (aB V0) 240 := by
  refine ((step240_val (val240 V0)).1).trans ?_
  rw [val240_main_arg0 V0, val240_main_v3 V0, val240_main_arg2 V0, val240_h V0]
  exact (hI_at (aX V0) (aA V0) (aB V0) 239 240 (by decide) rfl).symm
theorem val241_y (V0 : Valuation τ sig (Elt Ideal)) : val241 V0 (Proc.devRef .tc main_v4823) = yJ (aX V0) (aA V0) (aB V0) (aC V0) 241 := by
  refine ((step240_val (val240 V0)).2).trans ?_
  rw [val240_main_arg0 V0, val240_main_v3 V0, val240_main_arg2 V0, val240_main_arg3 V0, val240_h V0, val240_y V0]
  rw [← hI_at (aX V0) (aA V0) (aB V0) 239 240 (by decide) rfl]
  exact (yJ_at (aX V0) (aA V0) (aB V0) (aC V0) 240 241 (by decide) rfl).symm
/-- The contents after step 241. -/
def val242 (V0 : Valuation τ sig (Elt Ideal)) : Valuation τ sig (Elt Ideal) := after (stepOps241 (F := Ideal)) (val241 V0)
theorem val242_main_arg0 (V0 : Valuation τ sig (Elt Ideal)) : val242 V0 (Proc.devRef .tc main_arg0) = aX V0 :=
  (after_keep _ 10 stepOps241_ok main_arg0 (by decide +kernel) (val241 V0)).trans (val241_main_arg0 V0)
theorem val242_main_arg1 (V0 : Valuation τ sig (Elt Ideal)) : val242 V0 (Proc.devRef .tc main_arg1) = aA V0 :=
  (after_keep _ 10 stepOps241_ok main_arg1 (by decide +kernel) (val241 V0)).trans (val241_main_arg1 V0)
theorem val242_main_arg2 (V0 : Valuation τ sig (Elt Ideal)) : val242 V0 (Proc.devRef .tc main_arg2) = aB V0 :=
  (after_keep _ 10 stepOps241_ok main_arg2 (by decide +kernel) (val241 V0)).trans (val241_main_arg2 V0)
theorem val242_main_arg3 (V0 : Valuation τ sig (Elt Ideal)) : val242 V0 (Proc.devRef .tc main_arg3) = aC V0 :=
  (after_keep _ 10 stepOps241_ok main_arg3 (by decide +kernel) (val241 V0)).trans (val241_main_arg3 V0)
theorem val242_main_v3 (V0 : Valuation τ sig (Elt Ideal)) : val242 V0 (Proc.devRef .tc main_v3) = decay (aA V0) :=
  (after_keep _ 10 stepOps241_ok main_v3 (by decide +kernel) (val241 V0)).trans (val241_main_v3 V0)
theorem val242_h (V0 : Valuation τ sig (Elt Ideal)) : val242 V0 (Proc.devRef .tc main_v4835) = hI (aX V0) (aA V0) (aB V0) 241 := by
  refine ((step241_val (val241 V0)).1).trans ?_
  rw [val241_main_arg0 V0, val241_main_v3 V0, val241_main_arg2 V0, val241_h V0]
  exact (hI_at (aX V0) (aA V0) (aB V0) 240 241 (by decide) rfl).symm
theorem val242_y (V0 : Valuation τ sig (Elt Ideal)) : val242 V0 (Proc.devRef .tc main_v4843) = yJ (aX V0) (aA V0) (aB V0) (aC V0) 242 := by
  refine ((step241_val (val241 V0)).2).trans ?_
  rw [val241_main_arg0 V0, val241_main_v3 V0, val241_main_arg2 V0, val241_main_arg3 V0, val241_h V0, val241_y V0]
  rw [← hI_at (aX V0) (aA V0) (aB V0) 240 241 (by decide) rfl]
  exact (yJ_at (aX V0) (aA V0) (aB V0) (aC V0) 241 242 (by decide) rfl).symm
/-- The contents after step 242. -/
def val243 (V0 : Valuation τ sig (Elt Ideal)) : Valuation τ sig (Elt Ideal) := after (stepOps242 (F := Ideal)) (val242 V0)
theorem val243_main_arg0 (V0 : Valuation τ sig (Elt Ideal)) : val243 V0 (Proc.devRef .tc main_arg0) = aX V0 :=
  (after_keep _ 10 stepOps242_ok main_arg0 (by decide +kernel) (val242 V0)).trans (val242_main_arg0 V0)
theorem val243_main_arg1 (V0 : Valuation τ sig (Elt Ideal)) : val243 V0 (Proc.devRef .tc main_arg1) = aA V0 :=
  (after_keep _ 10 stepOps242_ok main_arg1 (by decide +kernel) (val242 V0)).trans (val242_main_arg1 V0)
theorem val243_main_arg2 (V0 : Valuation τ sig (Elt Ideal)) : val243 V0 (Proc.devRef .tc main_arg2) = aB V0 :=
  (after_keep _ 10 stepOps242_ok main_arg2 (by decide +kernel) (val242 V0)).trans (val242_main_arg2 V0)
theorem val243_main_arg3 (V0 : Valuation τ sig (Elt Ideal)) : val243 V0 (Proc.devRef .tc main_arg3) = aC V0 :=
  (after_keep _ 10 stepOps242_ok main_arg3 (by decide +kernel) (val242 V0)).trans (val242_main_arg3 V0)
theorem val243_main_v3 (V0 : Valuation τ sig (Elt Ideal)) : val243 V0 (Proc.devRef .tc main_v3) = decay (aA V0) :=
  (after_keep _ 10 stepOps242_ok main_v3 (by decide +kernel) (val242 V0)).trans (val242_main_v3 V0)
theorem val243_h (V0 : Valuation τ sig (Elt Ideal)) : val243 V0 (Proc.devRef .tc main_v4855) = hI (aX V0) (aA V0) (aB V0) 242 := by
  refine ((step242_val (val242 V0)).1).trans ?_
  rw [val242_main_arg0 V0, val242_main_v3 V0, val242_main_arg2 V0, val242_h V0]
  exact (hI_at (aX V0) (aA V0) (aB V0) 241 242 (by decide) rfl).symm
theorem val243_y (V0 : Valuation τ sig (Elt Ideal)) : val243 V0 (Proc.devRef .tc main_v4863) = yJ (aX V0) (aA V0) (aB V0) (aC V0) 243 := by
  refine ((step242_val (val242 V0)).2).trans ?_
  rw [val242_main_arg0 V0, val242_main_v3 V0, val242_main_arg2 V0, val242_main_arg3 V0, val242_h V0, val242_y V0]
  rw [← hI_at (aX V0) (aA V0) (aB V0) 241 242 (by decide) rfl]
  exact (yJ_at (aX V0) (aA V0) (aB V0) (aC V0) 242 243 (by decide) rfl).symm
/-- The contents after step 243. -/
def val244 (V0 : Valuation τ sig (Elt Ideal)) : Valuation τ sig (Elt Ideal) := after (stepOps243 (F := Ideal)) (val243 V0)
theorem val244_main_arg0 (V0 : Valuation τ sig (Elt Ideal)) : val244 V0 (Proc.devRef .tc main_arg0) = aX V0 :=
  (after_keep _ 10 stepOps243_ok main_arg0 (by decide +kernel) (val243 V0)).trans (val243_main_arg0 V0)
theorem val244_main_arg1 (V0 : Valuation τ sig (Elt Ideal)) : val244 V0 (Proc.devRef .tc main_arg1) = aA V0 :=
  (after_keep _ 10 stepOps243_ok main_arg1 (by decide +kernel) (val243 V0)).trans (val243_main_arg1 V0)
theorem val244_main_arg2 (V0 : Valuation τ sig (Elt Ideal)) : val244 V0 (Proc.devRef .tc main_arg2) = aB V0 :=
  (after_keep _ 10 stepOps243_ok main_arg2 (by decide +kernel) (val243 V0)).trans (val243_main_arg2 V0)
theorem val244_main_arg3 (V0 : Valuation τ sig (Elt Ideal)) : val244 V0 (Proc.devRef .tc main_arg3) = aC V0 :=
  (after_keep _ 10 stepOps243_ok main_arg3 (by decide +kernel) (val243 V0)).trans (val243_main_arg3 V0)
theorem val244_main_v3 (V0 : Valuation τ sig (Elt Ideal)) : val244 V0 (Proc.devRef .tc main_v3) = decay (aA V0) :=
  (after_keep _ 10 stepOps243_ok main_v3 (by decide +kernel) (val243 V0)).trans (val243_main_v3 V0)
theorem val244_h (V0 : Valuation τ sig (Elt Ideal)) : val244 V0 (Proc.devRef .tc main_v4875) = hI (aX V0) (aA V0) (aB V0) 243 := by
  refine ((step243_val (val243 V0)).1).trans ?_
  rw [val243_main_arg0 V0, val243_main_v3 V0, val243_main_arg2 V0, val243_h V0]
  exact (hI_at (aX V0) (aA V0) (aB V0) 242 243 (by decide) rfl).symm
theorem val244_y (V0 : Valuation τ sig (Elt Ideal)) : val244 V0 (Proc.devRef .tc main_v4883) = yJ (aX V0) (aA V0) (aB V0) (aC V0) 244 := by
  refine ((step243_val (val243 V0)).2).trans ?_
  rw [val243_main_arg0 V0, val243_main_v3 V0, val243_main_arg2 V0, val243_main_arg3 V0, val243_h V0, val243_y V0]
  rw [← hI_at (aX V0) (aA V0) (aB V0) 242 243 (by decide) rfl]
  exact (yJ_at (aX V0) (aA V0) (aB V0) (aC V0) 243 244 (by decide) rfl).symm
/-- The contents after step 244. -/
def val245 (V0 : Valuation τ sig (Elt Ideal)) : Valuation τ sig (Elt Ideal) := after (stepOps244 (F := Ideal)) (val244 V0)
theorem val245_main_arg0 (V0 : Valuation τ sig (Elt Ideal)) : val245 V0 (Proc.devRef .tc main_arg0) = aX V0 :=
  (after_keep _ 10 stepOps244_ok main_arg0 (by decide +kernel) (val244 V0)).trans (val244_main_arg0 V0)
theorem val245_main_arg1 (V0 : Valuation τ sig (Elt Ideal)) : val245 V0 (Proc.devRef .tc main_arg1) = aA V0 :=
  (after_keep _ 10 stepOps244_ok main_arg1 (by decide +kernel) (val244 V0)).trans (val244_main_arg1 V0)
theorem val245_main_arg2 (V0 : Valuation τ sig (Elt Ideal)) : val245 V0 (Proc.devRef .tc main_arg2) = aB V0 :=
  (after_keep _ 10 stepOps244_ok main_arg2 (by decide +kernel) (val244 V0)).trans (val244_main_arg2 V0)
theorem val245_main_arg3 (V0 : Valuation τ sig (Elt Ideal)) : val245 V0 (Proc.devRef .tc main_arg3) = aC V0 :=
  (after_keep _ 10 stepOps244_ok main_arg3 (by decide +kernel) (val244 V0)).trans (val244_main_arg3 V0)
theorem val245_main_v3 (V0 : Valuation τ sig (Elt Ideal)) : val245 V0 (Proc.devRef .tc main_v3) = decay (aA V0) :=
  (after_keep _ 10 stepOps244_ok main_v3 (by decide +kernel) (val244 V0)).trans (val244_main_v3 V0)
theorem val245_h (V0 : Valuation τ sig (Elt Ideal)) : val245 V0 (Proc.devRef .tc main_v4895) = hI (aX V0) (aA V0) (aB V0) 244 := by
  refine ((step244_val (val244 V0)).1).trans ?_
  rw [val244_main_arg0 V0, val244_main_v3 V0, val244_main_arg2 V0, val244_h V0]
  exact (hI_at (aX V0) (aA V0) (aB V0) 243 244 (by decide) rfl).symm
theorem val245_y (V0 : Valuation τ sig (Elt Ideal)) : val245 V0 (Proc.devRef .tc main_v4903) = yJ (aX V0) (aA V0) (aB V0) (aC V0) 245 := by
  refine ((step244_val (val244 V0)).2).trans ?_
  rw [val244_main_arg0 V0, val244_main_v3 V0, val244_main_arg2 V0, val244_main_arg3 V0, val244_h V0, val244_y V0]
  rw [← hI_at (aX V0) (aA V0) (aB V0) 243 244 (by decide) rfl]
  exact (yJ_at (aX V0) (aA V0) (aB V0) (aC V0) 244 245 (by decide) rfl).symm
/-- The contents after step 245. -/
def val246 (V0 : Valuation τ sig (Elt Ideal)) : Valuation τ sig (Elt Ideal) := after (stepOps245 (F := Ideal)) (val245 V0)
theorem val246_main_arg0 (V0 : Valuation τ sig (Elt Ideal)) : val246 V0 (Proc.devRef .tc main_arg0) = aX V0 :=
  (after_keep _ 10 stepOps245_ok main_arg0 (by decide +kernel) (val245 V0)).trans (val245_main_arg0 V0)
theorem val246_main_arg1 (V0 : Valuation τ sig (Elt Ideal)) : val246 V0 (Proc.devRef .tc main_arg1) = aA V0 :=
  (after_keep _ 10 stepOps245_ok main_arg1 (by decide +kernel) (val245 V0)).trans (val245_main_arg1 V0)
theorem val246_main_arg2 (V0 : Valuation τ sig (Elt Ideal)) : val246 V0 (Proc.devRef .tc main_arg2) = aB V0 :=
  (after_keep _ 10 stepOps245_ok main_arg2 (by decide +kernel) (val245 V0)).trans (val245_main_arg2 V0)
theorem val246_main_arg3 (V0 : Valuation τ sig (Elt Ideal)) : val246 V0 (Proc.devRef .tc main_arg3) = aC V0 :=
  (after_keep _ 10 stepOps245_ok main_arg3 (by decide +kernel) (val245 V0)).trans (val245_main_arg3 V0)
theorem val246_main_v3 (V0 : Valuation τ sig (Elt Ideal)) : val246 V0 (Proc.devRef .tc main_v3) = decay (aA V0) :=
  (after_keep _ 10 stepOps245_ok main_v3 (by decide +kernel) (val245 V0)).trans (val245_main_v3 V0)
theorem val246_h (V0 : Valuation τ sig (Elt Ideal)) : val246 V0 (Proc.devRef .tc main_v4915) = hI (aX V0) (aA V0) (aB V0) 245 := by
  refine ((step245_val (val245 V0)).1).trans ?_
  rw [val245_main_arg0 V0, val245_main_v3 V0, val245_main_arg2 V0, val245_h V0]
  exact (hI_at (aX V0) (aA V0) (aB V0) 244 245 (by decide) rfl).symm
theorem val246_y (V0 : Valuation τ sig (Elt Ideal)) : val246 V0 (Proc.devRef .tc main_v4923) = yJ (aX V0) (aA V0) (aB V0) (aC V0) 246 := by
  refine ((step245_val (val245 V0)).2).trans ?_
  rw [val245_main_arg0 V0, val245_main_v3 V0, val245_main_arg2 V0, val245_main_arg3 V0, val245_h V0, val245_y V0]
  rw [← hI_at (aX V0) (aA V0) (aB V0) 244 245 (by decide) rfl]
  exact (yJ_at (aX V0) (aA V0) (aB V0) (aC V0) 245 246 (by decide) rfl).symm
/-- The contents after step 246. -/
def val247 (V0 : Valuation τ sig (Elt Ideal)) : Valuation τ sig (Elt Ideal) := after (stepOps246 (F := Ideal)) (val246 V0)
theorem val247_main_arg0 (V0 : Valuation τ sig (Elt Ideal)) : val247 V0 (Proc.devRef .tc main_arg0) = aX V0 :=
  (after_keep _ 10 stepOps246_ok main_arg0 (by decide +kernel) (val246 V0)).trans (val246_main_arg0 V0)
theorem val247_main_arg1 (V0 : Valuation τ sig (Elt Ideal)) : val247 V0 (Proc.devRef .tc main_arg1) = aA V0 :=
  (after_keep _ 10 stepOps246_ok main_arg1 (by decide +kernel) (val246 V0)).trans (val246_main_arg1 V0)
theorem val247_main_arg2 (V0 : Valuation τ sig (Elt Ideal)) : val247 V0 (Proc.devRef .tc main_arg2) = aB V0 :=
  (after_keep _ 10 stepOps246_ok main_arg2 (by decide +kernel) (val246 V0)).trans (val246_main_arg2 V0)
theorem val247_main_arg3 (V0 : Valuation τ sig (Elt Ideal)) : val247 V0 (Proc.devRef .tc main_arg3) = aC V0 :=
  (after_keep _ 10 stepOps246_ok main_arg3 (by decide +kernel) (val246 V0)).trans (val246_main_arg3 V0)
theorem val247_main_v3 (V0 : Valuation τ sig (Elt Ideal)) : val247 V0 (Proc.devRef .tc main_v3) = decay (aA V0) :=
  (after_keep _ 10 stepOps246_ok main_v3 (by decide +kernel) (val246 V0)).trans (val246_main_v3 V0)
theorem val247_h (V0 : Valuation τ sig (Elt Ideal)) : val247 V0 (Proc.devRef .tc main_v4935) = hI (aX V0) (aA V0) (aB V0) 246 := by
  refine ((step246_val (val246 V0)).1).trans ?_
  rw [val246_main_arg0 V0, val246_main_v3 V0, val246_main_arg2 V0, val246_h V0]
  exact (hI_at (aX V0) (aA V0) (aB V0) 245 246 (by decide) rfl).symm
theorem val247_y (V0 : Valuation τ sig (Elt Ideal)) : val247 V0 (Proc.devRef .tc main_v4943) = yJ (aX V0) (aA V0) (aB V0) (aC V0) 247 := by
  refine ((step246_val (val246 V0)).2).trans ?_
  rw [val246_main_arg0 V0, val246_main_v3 V0, val246_main_arg2 V0, val246_main_arg3 V0, val246_h V0, val246_y V0]
  rw [← hI_at (aX V0) (aA V0) (aB V0) 245 246 (by decide) rfl]
  exact (yJ_at (aX V0) (aA V0) (aB V0) (aC V0) 246 247 (by decide) rfl).symm
/-- The contents after step 247. -/
def val248 (V0 : Valuation τ sig (Elt Ideal)) : Valuation τ sig (Elt Ideal) := after (stepOps247 (F := Ideal)) (val247 V0)
theorem val248_main_arg0 (V0 : Valuation τ sig (Elt Ideal)) : val248 V0 (Proc.devRef .tc main_arg0) = aX V0 :=
  (after_keep _ 10 stepOps247_ok main_arg0 (by decide +kernel) (val247 V0)).trans (val247_main_arg0 V0)
theorem val248_main_arg1 (V0 : Valuation τ sig (Elt Ideal)) : val248 V0 (Proc.devRef .tc main_arg1) = aA V0 :=
  (after_keep _ 10 stepOps247_ok main_arg1 (by decide +kernel) (val247 V0)).trans (val247_main_arg1 V0)
theorem val248_main_arg2 (V0 : Valuation τ sig (Elt Ideal)) : val248 V0 (Proc.devRef .tc main_arg2) = aB V0 :=
  (after_keep _ 10 stepOps247_ok main_arg2 (by decide +kernel) (val247 V0)).trans (val247_main_arg2 V0)
theorem val248_main_arg3 (V0 : Valuation τ sig (Elt Ideal)) : val248 V0 (Proc.devRef .tc main_arg3) = aC V0 :=
  (after_keep _ 10 stepOps247_ok main_arg3 (by decide +kernel) (val247 V0)).trans (val247_main_arg3 V0)
theorem val248_main_v3 (V0 : Valuation τ sig (Elt Ideal)) : val248 V0 (Proc.devRef .tc main_v3) = decay (aA V0) :=
  (after_keep _ 10 stepOps247_ok main_v3 (by decide +kernel) (val247 V0)).trans (val247_main_v3 V0)
theorem val248_h (V0 : Valuation τ sig (Elt Ideal)) : val248 V0 (Proc.devRef .tc main_v4955) = hI (aX V0) (aA V0) (aB V0) 247 := by
  refine ((step247_val (val247 V0)).1).trans ?_
  rw [val247_main_arg0 V0, val247_main_v3 V0, val247_main_arg2 V0, val247_h V0]
  exact (hI_at (aX V0) (aA V0) (aB V0) 246 247 (by decide) rfl).symm
theorem val248_y (V0 : Valuation τ sig (Elt Ideal)) : val248 V0 (Proc.devRef .tc main_v4963) = yJ (aX V0) (aA V0) (aB V0) (aC V0) 248 := by
  refine ((step247_val (val247 V0)).2).trans ?_
  rw [val247_main_arg0 V0, val247_main_v3 V0, val247_main_arg2 V0, val247_main_arg3 V0, val247_h V0, val247_y V0]
  rw [← hI_at (aX V0) (aA V0) (aB V0) 246 247 (by decide) rfl]
  exact (yJ_at (aX V0) (aA V0) (aB V0) (aC V0) 247 248 (by decide) rfl).symm
/-- The contents after step 248. -/
def val249 (V0 : Valuation τ sig (Elt Ideal)) : Valuation τ sig (Elt Ideal) := after (stepOps248 (F := Ideal)) (val248 V0)
theorem val249_main_arg0 (V0 : Valuation τ sig (Elt Ideal)) : val249 V0 (Proc.devRef .tc main_arg0) = aX V0 :=
  (after_keep _ 10 stepOps248_ok main_arg0 (by decide +kernel) (val248 V0)).trans (val248_main_arg0 V0)
theorem val249_main_arg1 (V0 : Valuation τ sig (Elt Ideal)) : val249 V0 (Proc.devRef .tc main_arg1) = aA V0 :=
  (after_keep _ 10 stepOps248_ok main_arg1 (by decide +kernel) (val248 V0)).trans (val248_main_arg1 V0)
theorem val249_main_arg2 (V0 : Valuation τ sig (Elt Ideal)) : val249 V0 (Proc.devRef .tc main_arg2) = aB V0 :=
  (after_keep _ 10 stepOps248_ok main_arg2 (by decide +kernel) (val248 V0)).trans (val248_main_arg2 V0)
theorem val249_main_arg3 (V0 : Valuation τ sig (Elt Ideal)) : val249 V0 (Proc.devRef .tc main_arg3) = aC V0 :=
  (after_keep _ 10 stepOps248_ok main_arg3 (by decide +kernel) (val248 V0)).trans (val248_main_arg3 V0)
theorem val249_main_v3 (V0 : Valuation τ sig (Elt Ideal)) : val249 V0 (Proc.devRef .tc main_v3) = decay (aA V0) :=
  (after_keep _ 10 stepOps248_ok main_v3 (by decide +kernel) (val248 V0)).trans (val248_main_v3 V0)
theorem val249_h (V0 : Valuation τ sig (Elt Ideal)) : val249 V0 (Proc.devRef .tc main_v4975) = hI (aX V0) (aA V0) (aB V0) 248 := by
  refine ((step248_val (val248 V0)).1).trans ?_
  rw [val248_main_arg0 V0, val248_main_v3 V0, val248_main_arg2 V0, val248_h V0]
  exact (hI_at (aX V0) (aA V0) (aB V0) 247 248 (by decide) rfl).symm
theorem val249_y (V0 : Valuation τ sig (Elt Ideal)) : val249 V0 (Proc.devRef .tc main_v4983) = yJ (aX V0) (aA V0) (aB V0) (aC V0) 249 := by
  refine ((step248_val (val248 V0)).2).trans ?_
  rw [val248_main_arg0 V0, val248_main_v3 V0, val248_main_arg2 V0, val248_main_arg3 V0, val248_h V0, val248_y V0]
  rw [← hI_at (aX V0) (aA V0) (aB V0) 247 248 (by decide) rfl]
  exact (yJ_at (aX V0) (aA V0) (aB V0) (aC V0) 248 249 (by decide) rfl).symm
/-- The contents after step 249. -/
def val250 (V0 : Valuation τ sig (Elt Ideal)) : Valuation τ sig (Elt Ideal) := after (stepOps249 (F := Ideal)) (val249 V0)
theorem val250_main_arg0 (V0 : Valuation τ sig (Elt Ideal)) : val250 V0 (Proc.devRef .tc main_arg0) = aX V0 :=
  (after_keep _ 10 stepOps249_ok main_arg0 (by decide +kernel) (val249 V0)).trans (val249_main_arg0 V0)
theorem val250_main_arg1 (V0 : Valuation τ sig (Elt Ideal)) : val250 V0 (Proc.devRef .tc main_arg1) = aA V0 :=
  (after_keep _ 10 stepOps249_ok main_arg1 (by decide +kernel) (val249 V0)).trans (val249_main_arg1 V0)
theorem val250_main_arg2 (V0 : Valuation τ sig (Elt Ideal)) : val250 V0 (Proc.devRef .tc main_arg2) = aB V0 :=
  (after_keep _ 10 stepOps249_ok main_arg2 (by decide +kernel) (val249 V0)).trans (val249_main_arg2 V0)
theorem val250_main_arg3 (V0 : Valuation τ sig (Elt Ideal)) : val250 V0 (Proc.devRef .tc main_arg3) = aC V0 :=
  (after_keep _ 10 stepOps249_ok main_arg3 (by decide +kernel) (val249 V0)).trans (val249_main_arg3 V0)
theorem val250_main_v3 (V0 : Valuation τ sig (Elt Ideal)) : val250 V0 (Proc.devRef .tc main_v3) = decay (aA V0) :=
  (after_keep _ 10 stepOps249_ok main_v3 (by decide +kernel) (val249 V0)).trans (val249_main_v3 V0)
theorem val250_h (V0 : Valuation τ sig (Elt Ideal)) : val250 V0 (Proc.devRef .tc main_v4995) = hI (aX V0) (aA V0) (aB V0) 249 := by
  refine ((step249_val (val249 V0)).1).trans ?_
  rw [val249_main_arg0 V0, val249_main_v3 V0, val249_main_arg2 V0, val249_h V0]
  exact (hI_at (aX V0) (aA V0) (aB V0) 248 249 (by decide) rfl).symm
theorem val250_y (V0 : Valuation τ sig (Elt Ideal)) : val250 V0 (Proc.devRef .tc main_v5003) = yJ (aX V0) (aA V0) (aB V0) (aC V0) 250 := by
  refine ((step249_val (val249 V0)).2).trans ?_
  rw [val249_main_arg0 V0, val249_main_v3 V0, val249_main_arg2 V0, val249_main_arg3 V0, val249_h V0, val249_y V0]
  rw [← hI_at (aX V0) (aA V0) (aB V0) 248 249 (by decide) rfl]
  exact (yJ_at (aX V0) (aA V0) (aB V0) (aC V0) 249 250 (by decide) rfl).symm
/-- The contents after step 250. -/
def val251 (V0 : Valuation τ sig (Elt Ideal)) : Valuation τ sig (Elt Ideal) := after (stepOps250 (F := Ideal)) (val250 V0)
theorem val251_main_arg0 (V0 : Valuation τ sig (Elt Ideal)) : val251 V0 (Proc.devRef .tc main_arg0) = aX V0 :=
  (after_keep _ 10 stepOps250_ok main_arg0 (by decide +kernel) (val250 V0)).trans (val250_main_arg0 V0)
theorem val251_main_arg1 (V0 : Valuation τ sig (Elt Ideal)) : val251 V0 (Proc.devRef .tc main_arg1) = aA V0 :=
  (after_keep _ 10 stepOps250_ok main_arg1 (by decide +kernel) (val250 V0)).trans (val250_main_arg1 V0)
theorem val251_main_arg2 (V0 : Valuation τ sig (Elt Ideal)) : val251 V0 (Proc.devRef .tc main_arg2) = aB V0 :=
  (after_keep _ 10 stepOps250_ok main_arg2 (by decide +kernel) (val250 V0)).trans (val250_main_arg2 V0)
theorem val251_main_arg3 (V0 : Valuation τ sig (Elt Ideal)) : val251 V0 (Proc.devRef .tc main_arg3) = aC V0 :=
  (after_keep _ 10 stepOps250_ok main_arg3 (by decide +kernel) (val250 V0)).trans (val250_main_arg3 V0)
theorem val251_main_v3 (V0 : Valuation τ sig (Elt Ideal)) : val251 V0 (Proc.devRef .tc main_v3) = decay (aA V0) :=
  (after_keep _ 10 stepOps250_ok main_v3 (by decide +kernel) (val250 V0)).trans (val250_main_v3 V0)
theorem val251_h (V0 : Valuation τ sig (Elt Ideal)) : val251 V0 (Proc.devRef .tc main_v5015) = hI (aX V0) (aA V0) (aB V0) 250 := by
  refine ((step250_val (val250 V0)).1).trans ?_
  rw [val250_main_arg0 V0, val250_main_v3 V0, val250_main_arg2 V0, val250_h V0]
  exact (hI_at (aX V0) (aA V0) (aB V0) 249 250 (by decide) rfl).symm
theorem val251_y (V0 : Valuation τ sig (Elt Ideal)) : val251 V0 (Proc.devRef .tc main_v5023) = yJ (aX V0) (aA V0) (aB V0) (aC V0) 251 := by
  refine ((step250_val (val250 V0)).2).trans ?_
  rw [val250_main_arg0 V0, val250_main_v3 V0, val250_main_arg2 V0, val250_main_arg3 V0, val250_h V0, val250_y V0]
  rw [← hI_at (aX V0) (aA V0) (aB V0) 249 250 (by decide) rfl]
  exact (yJ_at (aX V0) (aA V0) (aB V0) (aC V0) 250 251 (by decide) rfl).symm
/-- The contents after step 251. -/
def val252 (V0 : Valuation τ sig (Elt Ideal)) : Valuation τ sig (Elt Ideal) := after (stepOps251 (F := Ideal)) (val251 V0)
theorem val252_main_arg0 (V0 : Valuation τ sig (Elt Ideal)) : val252 V0 (Proc.devRef .tc main_arg0) = aX V0 :=
  (after_keep _ 10 stepOps251_ok main_arg0 (by decide +kernel) (val251 V0)).trans (val251_main_arg0 V0)
theorem val252_main_arg1 (V0 : Valuation τ sig (Elt Ideal)) : val252 V0 (Proc.devRef .tc main_arg1) = aA V0 :=
  (after_keep _ 10 stepOps251_ok main_arg1 (by decide +kernel) (val251 V0)).trans (val251_main_arg1 V0)
theorem val252_main_arg2 (V0 : Valuation τ sig (Elt Ideal)) : val252 V0 (Proc.devRef .tc main_arg2) = aB V0 :=
  (after_keep _ 10 stepOps251_ok main_arg2 (by decide +kernel) (val251 V0)).trans (val251_main_arg2 V0)
theorem val252_main_arg3 (V0 : Valuation τ sig (Elt Ideal)) : val252 V0 (Proc.devRef .tc main_arg3) = aC V0 :=
  (after_keep _ 10 stepOps251_ok main_arg3 (by decide +kernel) (val251 V0)).trans (val251_main_arg3 V0)
theorem val252_main_v3 (V0 : Valuation τ sig (Elt Ideal)) : val252 V0 (Proc.devRef .tc main_v3) = decay (aA V0) :=
  (after_keep _ 10 stepOps251_ok main_v3 (by decide +kernel) (val251 V0)).trans (val251_main_v3 V0)
theorem val252_h (V0 : Valuation τ sig (Elt Ideal)) : val252 V0 (Proc.devRef .tc main_v5035) = hI (aX V0) (aA V0) (aB V0) 251 := by
  refine ((step251_val (val251 V0)).1).trans ?_
  rw [val251_main_arg0 V0, val251_main_v3 V0, val251_main_arg2 V0, val251_h V0]
  exact (hI_at (aX V0) (aA V0) (aB V0) 250 251 (by decide) rfl).symm
theorem val252_y (V0 : Valuation τ sig (Elt Ideal)) : val252 V0 (Proc.devRef .tc main_v5043) = yJ (aX V0) (aA V0) (aB V0) (aC V0) 252 := by
  refine ((step251_val (val251 V0)).2).trans ?_
  rw [val251_main_arg0 V0, val251_main_v3 V0, val251_main_arg2 V0, val251_main_arg3 V0, val251_h V0, val251_y V0]
  rw [← hI_at (aX V0) (aA V0) (aB V0) 250 251 (by decide) rfl]
  exact (yJ_at (aX V0) (aA V0) (aB V0) (aC V0) 251 252 (by decide) rfl).symm
/-- The contents after step 252. -/
def val253 (V0 : Valuation τ sig (Elt Ideal)) : Valuation τ sig (Elt Ideal) := after (stepOps252 (F := Ideal)) (val252 V0)
theorem val253_main_arg0 (V0 : Valuation τ sig (Elt Ideal)) : val253 V0 (Proc.devRef .tc main_arg0) = aX V0 :=
  (after_keep _ 10 stepOps252_ok main_arg0 (by decide +kernel) (val252 V0)).trans (val252_main_arg0 V0)
theorem val253_main_arg1 (V0 : Valuation τ sig (Elt Ideal)) : val253 V0 (Proc.devRef .tc main_arg1) = aA V0 :=
  (after_keep _ 10 stepOps252_ok main_arg1 (by decide +kernel) (val252 V0)).trans (val252_main_arg1 V0)
theorem val253_main_arg2 (V0 : Valuation τ sig (Elt Ideal)) : val253 V0 (Proc.devRef .tc main_arg2) = aB V0 :=
  (after_keep _ 10 stepOps252_ok main_arg2 (by decide +kernel) (val252 V0)).trans (val252_main_arg2 V0)
theorem val253_main_arg3 (V0 : Valuation τ sig (Elt Ideal)) : val253 V0 (Proc.devRef .tc main_arg3) = aC V0 :=
  (after_keep _ 10 stepOps252_ok main_arg3 (by decide +kernel) (val252 V0)).trans (val252_main_arg3 V0)
theorem val253_main_v3 (V0 : Valuation τ sig (Elt Ideal)) : val253 V0 (Proc.devRef .tc main_v3) = decay (aA V0) :=
  (after_keep _ 10 stepOps252_ok main_v3 (by decide +kernel) (val252 V0)).trans (val252_main_v3 V0)
theorem val253_h (V0 : Valuation τ sig (Elt Ideal)) : val253 V0 (Proc.devRef .tc main_v5055) = hI (aX V0) (aA V0) (aB V0) 252 := by
  refine ((step252_val (val252 V0)).1).trans ?_
  rw [val252_main_arg0 V0, val252_main_v3 V0, val252_main_arg2 V0, val252_h V0]
  exact (hI_at (aX V0) (aA V0) (aB V0) 251 252 (by decide) rfl).symm
theorem val253_y (V0 : Valuation τ sig (Elt Ideal)) : val253 V0 (Proc.devRef .tc main_v5063) = yJ (aX V0) (aA V0) (aB V0) (aC V0) 253 := by
  refine ((step252_val (val252 V0)).2).trans ?_
  rw [val252_main_arg0 V0, val252_main_v3 V0, val252_main_arg2 V0, val252_main_arg3 V0, val252_h V0, val252_y V0]
  rw [← hI_at (aX V0) (aA V0) (aB V0) 251 252 (by decide) rfl]
  exact (yJ_at (aX V0) (aA V0) (aB V0) (aC V0) 252 253 (by decide) rfl).symm
/-- The contents after step 253. -/
def val254 (V0 : Valuation τ sig (Elt Ideal)) : Valuation τ sig (Elt Ideal) := after (stepOps253 (F := Ideal)) (val253 V0)
theorem val254_main_arg0 (V0 : Valuation τ sig (Elt Ideal)) : val254 V0 (Proc.devRef .tc main_arg0) = aX V0 :=
  (after_keep _ 10 stepOps253_ok main_arg0 (by decide +kernel) (val253 V0)).trans (val253_main_arg0 V0)
theorem val254_main_arg1 (V0 : Valuation τ sig (Elt Ideal)) : val254 V0 (Proc.devRef .tc main_arg1) = aA V0 :=
  (after_keep _ 10 stepOps253_ok main_arg1 (by decide +kernel) (val253 V0)).trans (val253_main_arg1 V0)
theorem val254_main_arg2 (V0 : Valuation τ sig (Elt Ideal)) : val254 V0 (Proc.devRef .tc main_arg2) = aB V0 :=
  (after_keep _ 10 stepOps253_ok main_arg2 (by decide +kernel) (val253 V0)).trans (val253_main_arg2 V0)
theorem val254_main_arg3 (V0 : Valuation τ sig (Elt Ideal)) : val254 V0 (Proc.devRef .tc main_arg3) = aC V0 :=
  (after_keep _ 10 stepOps253_ok main_arg3 (by decide +kernel) (val253 V0)).trans (val253_main_arg3 V0)
theorem val254_main_v3 (V0 : Valuation τ sig (Elt Ideal)) : val254 V0 (Proc.devRef .tc main_v3) = decay (aA V0) :=
  (after_keep _ 10 stepOps253_ok main_v3 (by decide +kernel) (val253 V0)).trans (val253_main_v3 V0)
theorem val254_h (V0 : Valuation τ sig (Elt Ideal)) : val254 V0 (Proc.devRef .tc main_v5075) = hI (aX V0) (aA V0) (aB V0) 253 := by
  refine ((step253_val (val253 V0)).1).trans ?_
  rw [val253_main_arg0 V0, val253_main_v3 V0, val253_main_arg2 V0, val253_h V0]
  exact (hI_at (aX V0) (aA V0) (aB V0) 252 253 (by decide) rfl).symm
theorem val254_y (V0 : Valuation τ sig (Elt Ideal)) : val254 V0 (Proc.devRef .tc main_v5083) = yJ (aX V0) (aA V0) (aB V0) (aC V0) 254 := by
  refine ((step253_val (val253 V0)).2).trans ?_
  rw [val253_main_arg0 V0, val253_main_v3 V0, val253_main_arg2 V0, val253_main_arg3 V0, val253_h V0, val253_y V0]
  rw [← hI_at (aX V0) (aA V0) (aB V0) 252 253 (by decide) rfl]
  exact (yJ_at (aX V0) (aA V0) (aB V0) (aC V0) 253 254 (by decide) rfl).symm
/-- The contents after step 254. -/
def val255 (V0 : Valuation τ sig (Elt Ideal)) : Valuation τ sig (Elt Ideal) := after (stepOps254 (F := Ideal)) (val254 V0)
theorem val255_main_arg0 (V0 : Valuation τ sig (Elt Ideal)) : val255 V0 (Proc.devRef .tc main_arg0) = aX V0 :=
  (after_keep _ 10 stepOps254_ok main_arg0 (by decide +kernel) (val254 V0)).trans (val254_main_arg0 V0)
theorem val255_main_arg1 (V0 : Valuation τ sig (Elt Ideal)) : val255 V0 (Proc.devRef .tc main_arg1) = aA V0 :=
  (after_keep _ 10 stepOps254_ok main_arg1 (by decide +kernel) (val254 V0)).trans (val254_main_arg1 V0)
theorem val255_main_arg2 (V0 : Valuation τ sig (Elt Ideal)) : val255 V0 (Proc.devRef .tc main_arg2) = aB V0 :=
  (after_keep _ 10 stepOps254_ok main_arg2 (by decide +kernel) (val254 V0)).trans (val254_main_arg2 V0)
theorem val255_main_arg3 (V0 : Valuation τ sig (Elt Ideal)) : val255 V0 (Proc.devRef .tc main_arg3) = aC V0 :=
  (after_keep _ 10 stepOps254_ok main_arg3 (by decide +kernel) (val254 V0)).trans (val254_main_arg3 V0)
theorem val255_main_v3 (V0 : Valuation τ sig (Elt Ideal)) : val255 V0 (Proc.devRef .tc main_v3) = decay (aA V0) :=
  (after_keep _ 10 stepOps254_ok main_v3 (by decide +kernel) (val254 V0)).trans (val254_main_v3 V0)
theorem val255_h (V0 : Valuation τ sig (Elt Ideal)) : val255 V0 (Proc.devRef .tc main_v5095) = hI (aX V0) (aA V0) (aB V0) 254 := by
  refine ((step254_val (val254 V0)).1).trans ?_
  rw [val254_main_arg0 V0, val254_main_v3 V0, val254_main_arg2 V0, val254_h V0]
  exact (hI_at (aX V0) (aA V0) (aB V0) 253 254 (by decide) rfl).symm
theorem val255_y (V0 : Valuation τ sig (Elt Ideal)) : val255 V0 (Proc.devRef .tc main_v5103) = yJ (aX V0) (aA V0) (aB V0) (aC V0) 255 := by
  refine ((step254_val (val254 V0)).2).trans ?_
  rw [val254_main_arg0 V0, val254_main_v3 V0, val254_main_arg2 V0, val254_main_arg3 V0, val254_h V0, val254_y V0]
  rw [← hI_at (aX V0) (aA V0) (aB V0) 253 254 (by decide) rfl]
  exact (yJ_at (aX V0) (aA V0) (aB V0) (aC V0) 254 255 (by decide) rfl).symm
/-- The contents after step 255. -/
def val256 (V0 : Valuation τ sig (Elt Ideal)) : Valuation τ sig (Elt Ideal) := after (stepOps255 (F := Ideal)) (val255 V0)
theorem val256_main_arg0 (V0 : Valuation τ sig (Elt Ideal)) : val256 V0 (Proc.devRef .tc main_arg0) = aX V0 :=
  (after_keep _ 10 stepOps255_ok main_arg0 (by decide +kernel) (val255 V0)).trans (val255_main_arg0 V0)
theorem val256_main_arg1 (V0 : Valuation τ sig (Elt Ideal)) : val256 V0 (Proc.devRef .tc main_arg1) = aA V0 :=
  (after_keep _ 10 stepOps255_ok main_arg1 (by decide +kernel) (val255 V0)).trans (val255_main_arg1 V0)
theorem val256_main_arg2 (V0 : Valuation τ sig (Elt Ideal)) : val256 V0 (Proc.devRef .tc main_arg2) = aB V0 :=
  (after_keep _ 10 stepOps255_ok main_arg2 (by decide +kernel) (val255 V0)).trans (val255_main_arg2 V0)
theorem val256_main_arg3 (V0 : Valuation τ sig (Elt Ideal)) : val256 V0 (Proc.devRef .tc main_arg3) = aC V0 :=
  (after_keep _ 10 stepOps255_ok main_arg3 (by decide +kernel) (val255 V0)).trans (val255_main_arg3 V0)
theorem val256_main_v3 (V0 : Valuation τ sig (Elt Ideal)) : val256 V0 (Proc.devRef .tc main_v3) = decay (aA V0) :=
  (after_keep _ 10 stepOps255_ok main_v3 (by decide +kernel) (val255 V0)).trans (val255_main_v3 V0)
theorem val256_h (V0 : Valuation τ sig (Elt Ideal)) : val256 V0 (Proc.devRef .tc main_v5115) = hI (aX V0) (aA V0) (aB V0) 255 := by
  refine ((step255_val (val255 V0)).1).trans ?_
  rw [val255_main_arg0 V0, val255_main_v3 V0, val255_main_arg2 V0, val255_h V0]
  exact (hI_at (aX V0) (aA V0) (aB V0) 254 255 (by decide) rfl).symm
theorem val256_y (V0 : Valuation τ sig (Elt Ideal)) : val256 V0 (Proc.devRef .tc main_v5123) = yJ (aX V0) (aA V0) (aB V0) (aC V0) 256 := by
  refine ((step255_val (val255 V0)).2).trans ?_
  rw [val255_main_arg0 V0, val255_main_v3 V0, val255_main_arg2 V0, val255_main_arg3 V0, val255_h V0, val255_y V0]
  rw [← hI_at (aX V0) (aA V0) (aB V0) 254 255 (by decide) rfl]
  exact (yJ_at (aX V0) (aA V0) (aB V0) (aC V0) 255 256 (by decide) rfl).symm
/-- The contents after step 256. -/
def val257 (V0 : Valuation τ sig (Elt Ideal)) : Valuation τ sig (Elt Ideal) := after (stepOps256 (F := Ideal)) (val256 V0)
theorem val257_main_arg0 (V0 : Valuation τ sig (Elt Ideal)) : val257 V0 (Proc.devRef .tc main_arg0) = aX V0 :=
  (after_keep _ 10 stepOps256_ok main_arg0 (by decide +kernel) (val256 V0)).trans (val256_main_arg0 V0)
theorem val257_main_arg1 (V0 : Valuation τ sig (Elt Ideal)) : val257 V0 (Proc.devRef .tc main_arg1) = aA V0 :=
  (after_keep _ 10 stepOps256_ok main_arg1 (by decide +kernel) (val256 V0)).trans (val256_main_arg1 V0)
theorem val257_main_arg2 (V0 : Valuation τ sig (Elt Ideal)) : val257 V0 (Proc.devRef .tc main_arg2) = aB V0 :=
  (after_keep _ 10 stepOps256_ok main_arg2 (by decide +kernel) (val256 V0)).trans (val256_main_arg2 V0)
theorem val257_main_arg3 (V0 : Valuation τ sig (Elt Ideal)) : val257 V0 (Proc.devRef .tc main_arg3) = aC V0 :=
  (after_keep _ 10 stepOps256_ok main_arg3 (by decide +kernel) (val256 V0)).trans (val256_main_arg3 V0)
theorem val257_main_v3 (V0 : Valuation τ sig (Elt Ideal)) : val257 V0 (Proc.devRef .tc main_v3) = decay (aA V0) :=
  (after_keep _ 10 stepOps256_ok main_v3 (by decide +kernel) (val256 V0)).trans (val256_main_v3 V0)
theorem val257_h (V0 : Valuation τ sig (Elt Ideal)) : val257 V0 (Proc.devRef .tc main_v5135) = hI (aX V0) (aA V0) (aB V0) 256 := by
  refine ((step256_val (val256 V0)).1).trans ?_
  rw [val256_main_arg0 V0, val256_main_v3 V0, val256_main_arg2 V0, val256_h V0]
  exact (hI_at (aX V0) (aA V0) (aB V0) 255 256 (by decide) rfl).symm
theorem val257_y (V0 : Valuation τ sig (Elt Ideal)) : val257 V0 (Proc.devRef .tc main_v5143) = yJ (aX V0) (aA V0) (aB V0) (aC V0) 257 := by
  refine ((step256_val (val256 V0)).2).trans ?_
  rw [val256_main_arg0 V0, val256_main_v3 V0, val256_main_arg2 V0, val256_main_arg3 V0, val256_h V0, val256_y V0]
  rw [← hI_at (aX V0) (aA V0) (aB V0) 255 256 (by decide) rfl]
  exact (yJ_at (aX V0) (aA V0) (aB V0) (aC V0) 256 257 (by decide) rfl).symm
/-- The contents after step 257. -/
def val258 (V0 : Valuation τ sig (Elt Ideal)) : Valuation τ sig (Elt Ideal) := after (stepOps257 (F := Ideal)) (val257 V0)
theorem val258_main_arg0 (V0 : Valuation τ sig (Elt Ideal)) : val258 V0 (Proc.devRef .tc main_arg0) = aX V0 :=
  (after_keep _ 10 stepOps257_ok main_arg0 (by decide +kernel) (val257 V0)).trans (val257_main_arg0 V0)
theorem val258_main_arg1 (V0 : Valuation τ sig (Elt Ideal)) : val258 V0 (Proc.devRef .tc main_arg1) = aA V0 :=
  (after_keep _ 10 stepOps257_ok main_arg1 (by decide +kernel) (val257 V0)).trans (val257_main_arg1 V0)
theorem val258_main_arg2 (V0 : Valuation τ sig (Elt Ideal)) : val258 V0 (Proc.devRef .tc main_arg2) = aB V0 :=
  (after_keep _ 10 stepOps257_ok main_arg2 (by decide +kernel) (val257 V0)).trans (val257_main_arg2 V0)
theorem val258_main_arg3 (V0 : Valuation τ sig (Elt Ideal)) : val258 V0 (Proc.devRef .tc main_arg3) = aC V0 :=
  (after_keep _ 10 stepOps257_ok main_arg3 (by decide +kernel) (val257 V0)).trans (val257_main_arg3 V0)
theorem val258_main_v3 (V0 : Valuation τ sig (Elt Ideal)) : val258 V0 (Proc.devRef .tc main_v3) = decay (aA V0) :=
  (after_keep _ 10 stepOps257_ok main_v3 (by decide +kernel) (val257 V0)).trans (val257_main_v3 V0)
theorem val258_h (V0 : Valuation τ sig (Elt Ideal)) : val258 V0 (Proc.devRef .tc main_v5155) = hI (aX V0) (aA V0) (aB V0) 257 := by
  refine ((step257_val (val257 V0)).1).trans ?_
  rw [val257_main_arg0 V0, val257_main_v3 V0, val257_main_arg2 V0, val257_h V0]
  exact (hI_at (aX V0) (aA V0) (aB V0) 256 257 (by decide) rfl).symm
theorem val258_y (V0 : Valuation τ sig (Elt Ideal)) : val258 V0 (Proc.devRef .tc main_v5163) = yJ (aX V0) (aA V0) (aB V0) (aC V0) 258 := by
  refine ((step257_val (val257 V0)).2).trans ?_
  rw [val257_main_arg0 V0, val257_main_v3 V0, val257_main_arg2 V0, val257_main_arg3 V0, val257_h V0, val257_y V0]
  rw [← hI_at (aX V0) (aA V0) (aB V0) 256 257 (by decide) rfl]
  exact (yJ_at (aX V0) (aA V0) (aB V0) (aC V0) 257 258 (by decide) rfl).symm
/-- The contents after step 258. -/
def val259 (V0 : Valuation τ sig (Elt Ideal)) : Valuation τ sig (Elt Ideal) := after (stepOps258 (F := Ideal)) (val258 V0)
theorem val259_main_arg0 (V0 : Valuation τ sig (Elt Ideal)) : val259 V0 (Proc.devRef .tc main_arg0) = aX V0 :=
  (after_keep _ 10 stepOps258_ok main_arg0 (by decide +kernel) (val258 V0)).trans (val258_main_arg0 V0)
theorem val259_main_arg1 (V0 : Valuation τ sig (Elt Ideal)) : val259 V0 (Proc.devRef .tc main_arg1) = aA V0 :=
  (after_keep _ 10 stepOps258_ok main_arg1 (by decide +kernel) (val258 V0)).trans (val258_main_arg1 V0)
theorem val259_main_arg2 (V0 : Valuation τ sig (Elt Ideal)) : val259 V0 (Proc.devRef .tc main_arg2) = aB V0 :=
  (after_keep _ 10 stepOps258_ok main_arg2 (by decide +kernel) (val258 V0)).trans (val258_main_arg2 V0)
theorem val259_main_arg3 (V0 : Valuation τ sig (Elt Ideal)) : val259 V0 (Proc.devRef .tc main_arg3) = aC V0 :=
  (after_keep _ 10 stepOps258_ok main_arg3 (by decide +kernel) (val258 V0)).trans (val258_main_arg3 V0)
theorem val259_main_v3 (V0 : Valuation τ sig (Elt Ideal)) : val259 V0 (Proc.devRef .tc main_v3) = decay (aA V0) :=
  (after_keep _ 10 stepOps258_ok main_v3 (by decide +kernel) (val258 V0)).trans (val258_main_v3 V0)
theorem val259_h (V0 : Valuation τ sig (Elt Ideal)) : val259 V0 (Proc.devRef .tc main_v5175) = hI (aX V0) (aA V0) (aB V0) 258 := by
  refine ((step258_val (val258 V0)).1).trans ?_
  rw [val258_main_arg0 V0, val258_main_v3 V0, val258_main_arg2 V0, val258_h V0]
  exact (hI_at (aX V0) (aA V0) (aB V0) 257 258 (by decide) rfl).symm
theorem val259_y (V0 : Valuation τ sig (Elt Ideal)) : val259 V0 (Proc.devRef .tc main_v5183) = yJ (aX V0) (aA V0) (aB V0) (aC V0) 259 := by
  refine ((step258_val (val258 V0)).2).trans ?_
  rw [val258_main_arg0 V0, val258_main_v3 V0, val258_main_arg2 V0, val258_main_arg3 V0, val258_h V0, val258_y V0]
  rw [← hI_at (aX V0) (aA V0) (aB V0) 257 258 (by decide) rfl]
  exact (yJ_at (aX V0) (aA V0) (aB V0) (aC V0) 258 259 (by decide) rfl).symm
/-- The contents after step 259. -/
def val260 (V0 : Valuation τ sig (Elt Ideal)) : Valuation τ sig (Elt Ideal) := after (stepOps259 (F := Ideal)) (val259 V0)
theorem val260_main_arg0 (V0 : Valuation τ sig (Elt Ideal)) : val260 V0 (Proc.devRef .tc main_arg0) = aX V0 :=
  (after_keep _ 10 stepOps259_ok main_arg0 (by decide +kernel) (val259 V0)).trans (val259_main_arg0 V0)
theorem val260_main_arg1 (V0 : Valuation τ sig (Elt Ideal)) : val260 V0 (Proc.devRef .tc main_arg1) = aA V0 :=
  (after_keep _ 10 stepOps259_ok main_arg1 (by decide +kernel) (val259 V0)).trans (val259_main_arg1 V0)
theorem val260_main_arg2 (V0 : Valuation τ sig (Elt Ideal)) : val260 V0 (Proc.devRef .tc main_arg2) = aB V0 :=
  (after_keep _ 10 stepOps259_ok main_arg2 (by decide +kernel) (val259 V0)).trans (val259_main_arg2 V0)
theorem val260_main_arg3 (V0 : Valuation τ sig (Elt Ideal)) : val260 V0 (Proc.devRef .tc main_arg3) = aC V0 :=
  (after_keep _ 10 stepOps259_ok main_arg3 (by decide +kernel) (val259 V0)).trans (val259_main_arg3 V0)
theorem val260_main_v3 (V0 : Valuation τ sig (Elt Ideal)) : val260 V0 (Proc.devRef .tc main_v3) = decay (aA V0) :=
  (after_keep _ 10 stepOps259_ok main_v3 (by decide +kernel) (val259 V0)).trans (val259_main_v3 V0)
theorem val260_h (V0 : Valuation τ sig (Elt Ideal)) : val260 V0 (Proc.devRef .tc main_v5195) = hI (aX V0) (aA V0) (aB V0) 259 := by
  refine ((step259_val (val259 V0)).1).trans ?_
  rw [val259_main_arg0 V0, val259_main_v3 V0, val259_main_arg2 V0, val259_h V0]
  exact (hI_at (aX V0) (aA V0) (aB V0) 258 259 (by decide) rfl).symm
theorem val260_y (V0 : Valuation τ sig (Elt Ideal)) : val260 V0 (Proc.devRef .tc main_v5203) = yJ (aX V0) (aA V0) (aB V0) (aC V0) 260 := by
  refine ((step259_val (val259 V0)).2).trans ?_
  rw [val259_main_arg0 V0, val259_main_v3 V0, val259_main_arg2 V0, val259_main_arg3 V0, val259_h V0, val259_y V0]
  rw [← hI_at (aX V0) (aA V0) (aB V0) 258 259 (by decide) rfl]
  exact (yJ_at (aX V0) (aA V0) (aB V0) (aC V0) 259 260 (by decide) rfl).symm
/-- The contents after step 260. -/
def val261 (V0 : Valuation τ sig (Elt Ideal)) : Valuation τ sig (Elt Ideal) := after (stepOps260 (F := Ideal)) (val260 V0)
theorem val261_main_arg0 (V0 : Valuation τ sig (Elt Ideal)) : val261 V0 (Proc.devRef .tc main_arg0) = aX V0 :=
  (after_keep _ 10 stepOps260_ok main_arg0 (by decide +kernel) (val260 V0)).trans (val260_main_arg0 V0)
theorem val261_main_arg1 (V0 : Valuation τ sig (Elt Ideal)) : val261 V0 (Proc.devRef .tc main_arg1) = aA V0 :=
  (after_keep _ 10 stepOps260_ok main_arg1 (by decide +kernel) (val260 V0)).trans (val260_main_arg1 V0)
theorem val261_main_arg2 (V0 : Valuation τ sig (Elt Ideal)) : val261 V0 (Proc.devRef .tc main_arg2) = aB V0 :=
  (after_keep _ 10 stepOps260_ok main_arg2 (by decide +kernel) (val260 V0)).trans (val260_main_arg2 V0)
theorem val261_main_arg3 (V0 : Valuation τ sig (Elt Ideal)) : val261 V0 (Proc.devRef .tc main_arg3) = aC V0 :=
  (after_keep _ 10 stepOps260_ok main_arg3 (by decide +kernel) (val260 V0)).trans (val260_main_arg3 V0)
theorem val261_main_v3 (V0 : Valuation τ sig (Elt Ideal)) : val261 V0 (Proc.devRef .tc main_v3) = decay (aA V0) :=
  (after_keep _ 10 stepOps260_ok main_v3 (by decide +kernel) (val260 V0)).trans (val260_main_v3 V0)
theorem val261_h (V0 : Valuation τ sig (Elt Ideal)) : val261 V0 (Proc.devRef .tc main_v5215) = hI (aX V0) (aA V0) (aB V0) 260 := by
  refine ((step260_val (val260 V0)).1).trans ?_
  rw [val260_main_arg0 V0, val260_main_v3 V0, val260_main_arg2 V0, val260_h V0]
  exact (hI_at (aX V0) (aA V0) (aB V0) 259 260 (by decide) rfl).symm
theorem val261_y (V0 : Valuation τ sig (Elt Ideal)) : val261 V0 (Proc.devRef .tc main_v5223) = yJ (aX V0) (aA V0) (aB V0) (aC V0) 261 := by
  refine ((step260_val (val260 V0)).2).trans ?_
  rw [val260_main_arg0 V0, val260_main_v3 V0, val260_main_arg2 V0, val260_main_arg3 V0, val260_h V0, val260_y V0]
  rw [← hI_at (aX V0) (aA V0) (aB V0) 259 260 (by decide) rfl]
  exact (yJ_at (aX V0) (aA V0) (aB V0) (aC V0) 260 261 (by decide) rfl).symm
/-- The contents after step 261. -/
def val262 (V0 : Valuation τ sig (Elt Ideal)) : Valuation τ sig (Elt Ideal) := after (stepOps261 (F := Ideal)) (val261 V0)
theorem val262_main_arg0 (V0 : Valuation τ sig (Elt Ideal)) : val262 V0 (Proc.devRef .tc main_arg0) = aX V0 :=
  (after_keep _ 10 stepOps261_ok main_arg0 (by decide +kernel) (val261 V0)).trans (val261_main_arg0 V0)
theorem val262_main_arg1 (V0 : Valuation τ sig (Elt Ideal)) : val262 V0 (Proc.devRef .tc main_arg1) = aA V0 :=
  (after_keep _ 10 stepOps261_ok main_arg1 (by decide +kernel) (val261 V0)).trans (val261_main_arg1 V0)
theorem val262_main_arg2 (V0 : Valuation τ sig (Elt Ideal)) : val262 V0 (Proc.devRef .tc main_arg2) = aB V0 :=
  (after_keep _ 10 stepOps261_ok main_arg2 (by decide +kernel) (val261 V0)).trans (val261_main_arg2 V0)
theorem val262_main_arg3 (V0 : Valuation τ sig (Elt Ideal)) : val262 V0 (Proc.devRef .tc main_arg3) = aC V0 :=
  (after_keep _ 10 stepOps261_ok main_arg3 (by decide +kernel) (val261 V0)).trans (val261_main_arg3 V0)
theorem val262_main_v3 (V0 : Valuation τ sig (Elt Ideal)) : val262 V0 (Proc.devRef .tc main_v3) = decay (aA V0) :=
  (after_keep _ 10 stepOps261_ok main_v3 (by decide +kernel) (val261 V0)).trans (val261_main_v3 V0)
theorem val262_h (V0 : Valuation τ sig (Elt Ideal)) : val262 V0 (Proc.devRef .tc main_v5235) = hI (aX V0) (aA V0) (aB V0) 261 := by
  refine ((step261_val (val261 V0)).1).trans ?_
  rw [val261_main_arg0 V0, val261_main_v3 V0, val261_main_arg2 V0, val261_h V0]
  exact (hI_at (aX V0) (aA V0) (aB V0) 260 261 (by decide) rfl).symm
theorem val262_y (V0 : Valuation τ sig (Elt Ideal)) : val262 V0 (Proc.devRef .tc main_v5243) = yJ (aX V0) (aA V0) (aB V0) (aC V0) 262 := by
  refine ((step261_val (val261 V0)).2).trans ?_
  rw [val261_main_arg0 V0, val261_main_v3 V0, val261_main_arg2 V0, val261_main_arg3 V0, val261_h V0, val261_y V0]
  rw [← hI_at (aX V0) (aA V0) (aB V0) 260 261 (by decide) rfl]
  exact (yJ_at (aX V0) (aA V0) (aB V0) (aC V0) 261 262 (by decide) rfl).symm
/-- The contents after step 262. -/
def val263 (V0 : Valuation τ sig (Elt Ideal)) : Valuation τ sig (Elt Ideal) := after (stepOps262 (F := Ideal)) (val262 V0)
theorem val263_main_arg0 (V0 : Valuation τ sig (Elt Ideal)) : val263 V0 (Proc.devRef .tc main_arg0) = aX V0 :=
  (after_keep _ 10 stepOps262_ok main_arg0 (by decide +kernel) (val262 V0)).trans (val262_main_arg0 V0)
theorem val263_main_arg1 (V0 : Valuation τ sig (Elt Ideal)) : val263 V0 (Proc.devRef .tc main_arg1) = aA V0 :=
  (after_keep _ 10 stepOps262_ok main_arg1 (by decide +kernel) (val262 V0)).trans (val262_main_arg1 V0)
theorem val263_main_arg2 (V0 : Valuation τ sig (Elt Ideal)) : val263 V0 (Proc.devRef .tc main_arg2) = aB V0 :=
  (after_keep _ 10 stepOps262_ok main_arg2 (by decide +kernel) (val262 V0)).trans (val262_main_arg2 V0)
theorem val263_main_arg3 (V0 : Valuation τ sig (Elt Ideal)) : val263 V0 (Proc.devRef .tc main_arg3) = aC V0 :=
  (after_keep _ 10 stepOps262_ok main_arg3 (by decide +kernel) (val262 V0)).trans (val262_main_arg3 V0)
theorem val263_main_v3 (V0 : Valuation τ sig (Elt Ideal)) : val263 V0 (Proc.devRef .tc main_v3) = decay (aA V0) :=
  (after_keep _ 10 stepOps262_ok main_v3 (by decide +kernel) (val262 V0)).trans (val262_main_v3 V0)
theorem val263_h (V0 : Valuation τ sig (Elt Ideal)) : val263 V0 (Proc.devRef .tc main_v5255) = hI (aX V0) (aA V0) (aB V0) 262 := by
  refine ((step262_val (val262 V0)).1).trans ?_
  rw [val262_main_arg0 V0, val262_main_v3 V0, val262_main_arg2 V0, val262_h V0]
  exact (hI_at (aX V0) (aA V0) (aB V0) 261 262 (by decide) rfl).symm
theorem val263_y (V0 : Valuation τ sig (Elt Ideal)) : val263 V0 (Proc.devRef .tc main_v5263) = yJ (aX V0) (aA V0) (aB V0) (aC V0) 263 := by
  refine ((step262_val (val262 V0)).2).trans ?_
  rw [val262_main_arg0 V0, val262_main_v3 V0, val262_main_arg2 V0, val262_main_arg3 V0, val262_h V0, val262_y V0]
  rw [← hI_at (aX V0) (aA V0) (aB V0) 261 262 (by decide) rfl]
  exact (yJ_at (aX V0) (aA V0) (aB V0) (aC V0) 262 263 (by decide) rfl).symm
/-- The contents after step 263. -/
def val264 (V0 : Valuation τ sig (Elt Ideal)) : Valuation τ sig (Elt Ideal) := after (stepOps263 (F := Ideal)) (val263 V0)
theorem val264_main_arg0 (V0 : Valuation τ sig (Elt Ideal)) : val264 V0 (Proc.devRef .tc main_arg0) = aX V0 :=
  (after_keep _ 10 stepOps263_ok main_arg0 (by decide +kernel) (val263 V0)).trans (val263_main_arg0 V0)
theorem val264_main_arg1 (V0 : Valuation τ sig (Elt Ideal)) : val264 V0 (Proc.devRef .tc main_arg1) = aA V0 :=
  (after_keep _ 10 stepOps263_ok main_arg1 (by decide +kernel) (val263 V0)).trans (val263_main_arg1 V0)
theorem val264_main_arg2 (V0 : Valuation τ sig (Elt Ideal)) : val264 V0 (Proc.devRef .tc main_arg2) = aB V0 :=
  (after_keep _ 10 stepOps263_ok main_arg2 (by decide +kernel) (val263 V0)).trans (val263_main_arg2 V0)
theorem val264_main_arg3 (V0 : Valuation τ sig (Elt Ideal)) : val264 V0 (Proc.devRef .tc main_arg3) = aC V0 :=
  (after_keep _ 10 stepOps263_ok main_arg3 (by decide +kernel) (val263 V0)).trans (val263_main_arg3 V0)
theorem val264_main_v3 (V0 : Valuation τ sig (Elt Ideal)) : val264 V0 (Proc.devRef .tc main_v3) = decay (aA V0) :=
  (after_keep _ 10 stepOps263_ok main_v3 (by decide +kernel) (val263 V0)).trans (val263_main_v3 V0)
theorem val264_h (V0 : Valuation τ sig (Elt Ideal)) : val264 V0 (Proc.devRef .tc main_v5275) = hI (aX V0) (aA V0) (aB V0) 263 := by
  refine ((step263_val (val263 V0)).1).trans ?_
  rw [val263_main_arg0 V0, val263_main_v3 V0, val263_main_arg2 V0, val263_h V0]
  exact (hI_at (aX V0) (aA V0) (aB V0) 262 263 (by decide) rfl).symm
theorem val264_y (V0 : Valuation τ sig (Elt Ideal)) : val264 V0 (Proc.devRef .tc main_v5283) = yJ (aX V0) (aA V0) (aB V0) (aC V0) 264 := by
  refine ((step263_val (val263 V0)).2).trans ?_
  rw [val263_main_arg0 V0, val263_main_v3 V0, val263_main_arg2 V0, val263_main_arg3 V0, val263_h V0, val263_y V0]
  rw [← hI_at (aX V0) (aA V0) (aB V0) 262 263 (by decide) rfl]
  exact (yJ_at (aX V0) (aA V0) (aB V0) (aC V0) 263 264 (by decide) rfl).symm
/-- The contents after step 264. -/
def val265 (V0 : Valuation τ sig (Elt Ideal)) : Valuation τ sig (Elt Ideal) := after (stepOps264 (F := Ideal)) (val264 V0)
theorem val265_main_arg0 (V0 : Valuation τ sig (Elt Ideal)) : val265 V0 (Proc.devRef .tc main_arg0) = aX V0 :=
  (after_keep _ 10 stepOps264_ok main_arg0 (by decide +kernel) (val264 V0)).trans (val264_main_arg0 V0)
theorem val265_main_arg1 (V0 : Valuation τ sig (Elt Ideal)) : val265 V0 (Proc.devRef .tc main_arg1) = aA V0 :=
  (after_keep _ 10 stepOps264_ok main_arg1 (by decide +kernel) (val264 V0)).trans (val264_main_arg1 V0)
theorem val265_main_arg2 (V0 : Valuation τ sig (Elt Ideal)) : val265 V0 (Proc.devRef .tc main_arg2) = aB V0 :=
  (after_keep _ 10 stepOps264_ok main_arg2 (by decide +kernel) (val264 V0)).trans (val264_main_arg2 V0)
theorem val265_main_arg3 (V0 : Valuation τ sig (Elt Ideal)) : val265 V0 (Proc.devRef .tc main_arg3) = aC V0 :=
  (after_keep _ 10 stepOps264_ok main_arg3 (by decide +kernel) (val264 V0)).trans (val264_main_arg3 V0)
theorem val265_main_v3 (V0 : Valuation τ sig (Elt Ideal)) : val265 V0 (Proc.devRef .tc main_v3) = decay (aA V0) :=
  (after_keep _ 10 stepOps264_ok main_v3 (by decide +kernel) (val264 V0)).trans (val264_main_v3 V0)
theorem val265_h (V0 : Valuation τ sig (Elt Ideal)) : val265 V0 (Proc.devRef .tc main_v5295) = hI (aX V0) (aA V0) (aB V0) 264 := by
  refine ((step264_val (val264 V0)).1).trans ?_
  rw [val264_main_arg0 V0, val264_main_v3 V0, val264_main_arg2 V0, val264_h V0]
  exact (hI_at (aX V0) (aA V0) (aB V0) 263 264 (by decide) rfl).symm
theorem val265_y (V0 : Valuation τ sig (Elt Ideal)) : val265 V0 (Proc.devRef .tc main_v5303) = yJ (aX V0) (aA V0) (aB V0) (aC V0) 265 := by
  refine ((step264_val (val264 V0)).2).trans ?_
  rw [val264_main_arg0 V0, val264_main_v3 V0, val264_main_arg2 V0, val264_main_arg3 V0, val264_h V0, val264_y V0]
  rw [← hI_at (aX V0) (aA V0) (aB V0) 263 264 (by decide) rfl]
  exact (yJ_at (aX V0) (aA V0) (aB V0) (aC V0) 264 265 (by decide) rfl).symm
/-- The contents after step 265. -/
def val266 (V0 : Valuation τ sig (Elt Ideal)) : Valuation τ sig (Elt Ideal) := after (stepOps265 (F := Ideal)) (val265 V0)
theorem val266_main_arg0 (V0 : Valuation τ sig (Elt Ideal)) : val266 V0 (Proc.devRef .tc main_arg0) = aX V0 :=
  (after_keep _ 10 stepOps265_ok main_arg0 (by decide +kernel) (val265 V0)).trans (val265_main_arg0 V0)
theorem val266_main_arg1 (V0 : Valuation τ sig (Elt Ideal)) : val266 V0 (Proc.devRef .tc main_arg1) = aA V0 :=
  (after_keep _ 10 stepOps265_ok main_arg1 (by decide +kernel) (val265 V0)).trans (val265_main_arg1 V0)
theorem val266_main_arg2 (V0 : Valuation τ sig (Elt Ideal)) : val266 V0 (Proc.devRef .tc main_arg2) = aB V0 :=
  (after_keep _ 10 stepOps265_ok main_arg2 (by decide +kernel) (val265 V0)).trans (val265_main_arg2 V0)
theorem val266_main_arg3 (V0 : Valuation τ sig (Elt Ideal)) : val266 V0 (Proc.devRef .tc main_arg3) = aC V0 :=
  (after_keep _ 10 stepOps265_ok main_arg3 (by decide +kernel) (val265 V0)).trans (val265_main_arg3 V0)
theorem val266_main_v3 (V0 : Valuation τ sig (Elt Ideal)) : val266 V0 (Proc.devRef .tc main_v3) = decay (aA V0) :=
  (after_keep _ 10 stepOps265_ok main_v3 (by decide +kernel) (val265 V0)).trans (val265_main_v3 V0)
theorem val266_h (V0 : Valuation τ sig (Elt Ideal)) : val266 V0 (Proc.devRef .tc main_v5315) = hI (aX V0) (aA V0) (aB V0) 265 := by
  refine ((step265_val (val265 V0)).1).trans ?_
  rw [val265_main_arg0 V0, val265_main_v3 V0, val265_main_arg2 V0, val265_h V0]
  exact (hI_at (aX V0) (aA V0) (aB V0) 264 265 (by decide) rfl).symm
theorem val266_y (V0 : Valuation τ sig (Elt Ideal)) : val266 V0 (Proc.devRef .tc main_v5323) = yJ (aX V0) (aA V0) (aB V0) (aC V0) 266 := by
  refine ((step265_val (val265 V0)).2).trans ?_
  rw [val265_main_arg0 V0, val265_main_v3 V0, val265_main_arg2 V0, val265_main_arg3 V0, val265_h V0, val265_y V0]
  rw [← hI_at (aX V0) (aA V0) (aB V0) 264 265 (by decide) rfl]
  exact (yJ_at (aX V0) (aA V0) (aB V0) (aC V0) 265 266 (by decide) rfl).symm
/-- The contents after step 266. -/
def val267 (V0 : Valuation τ sig (Elt Ideal)) : Valuation τ sig (Elt Ideal) := after (stepOps266 (F := Ideal)) (val266 V0)
theorem val267_main_arg0 (V0 : Valuation τ sig (Elt Ideal)) : val267 V0 (Proc.devRef .tc main_arg0) = aX V0 :=
  (after_keep _ 10 stepOps266_ok main_arg0 (by decide +kernel) (val266 V0)).trans (val266_main_arg0 V0)
theorem val267_main_arg1 (V0 : Valuation τ sig (Elt Ideal)) : val267 V0 (Proc.devRef .tc main_arg1) = aA V0 :=
  (after_keep _ 10 stepOps266_ok main_arg1 (by decide +kernel) (val266 V0)).trans (val266_main_arg1 V0)
theorem val267_main_arg2 (V0 : Valuation τ sig (Elt Ideal)) : val267 V0 (Proc.devRef .tc main_arg2) = aB V0 :=
  (after_keep _ 10 stepOps266_ok main_arg2 (by decide +kernel) (val266 V0)).trans (val266_main_arg2 V0)
theorem val267_main_arg3 (V0 : Valuation τ sig (Elt Ideal)) : val267 V0 (Proc.devRef .tc main_arg3) = aC V0 :=
  (after_keep _ 10 stepOps266_ok main_arg3 (by decide +kernel) (val266 V0)).trans (val266_main_arg3 V0)
theorem val267_main_v3 (V0 : Valuation τ sig (Elt Ideal)) : val267 V0 (Proc.devRef .tc main_v3) = decay (aA V0) :=
  (after_keep _ 10 stepOps266_ok main_v3 (by decide +kernel) (val266 V0)).trans (val266_main_v3 V0)
theorem val267_h (V0 : Valuation τ sig (Elt Ideal)) : val267 V0 (Proc.devRef .tc main_v5335) = hI (aX V0) (aA V0) (aB V0) 266 := by
  refine ((step266_val (val266 V0)).1).trans ?_
  rw [val266_main_arg0 V0, val266_main_v3 V0, val266_main_arg2 V0, val266_h V0]
  exact (hI_at (aX V0) (aA V0) (aB V0) 265 266 (by decide) rfl).symm
theorem val267_y (V0 : Valuation τ sig (Elt Ideal)) : val267 V0 (Proc.devRef .tc main_v5343) = yJ (aX V0) (aA V0) (aB V0) (aC V0) 267 := by
  refine ((step266_val (val266 V0)).2).trans ?_
  rw [val266_main_arg0 V0, val266_main_v3 V0, val266_main_arg2 V0, val266_main_arg3 V0, val266_h V0, val266_y V0]
  rw [← hI_at (aX V0) (aA V0) (aB V0) 265 266 (by decide) rfl]
  exact (yJ_at (aX V0) (aA V0) (aB V0) (aC V0) 266 267 (by decide) rfl).symm
/-- The contents after step 267. -/
def val268 (V0 : Valuation τ sig (Elt Ideal)) : Valuation τ sig (Elt Ideal) := after (stepOps267 (F := Ideal)) (val267 V0)
theorem val268_main_arg0 (V0 : Valuation τ sig (Elt Ideal)) : val268 V0 (Proc.devRef .tc main_arg0) = aX V0 :=
  (after_keep _ 10 stepOps267_ok main_arg0 (by decide +kernel) (val267 V0)).trans (val267_main_arg0 V0)
theorem val268_main_arg1 (V0 : Valuation τ sig (Elt Ideal)) : val268 V0 (Proc.devRef .tc main_arg1) = aA V0 :=
  (after_keep _ 10 stepOps267_ok main_arg1 (by decide +kernel) (val267 V0)).trans (val267_main_arg1 V0)
theorem val268_main_arg2 (V0 : Valuation τ sig (Elt Ideal)) : val268 V0 (Proc.devRef .tc main_arg2) = aB V0 :=
  (after_keep _ 10 stepOps267_ok main_arg2 (by decide +kernel) (val267 V0)).trans (val267_main_arg2 V0)
theorem val268_main_arg3 (V0 : Valuation τ sig (Elt Ideal)) : val268 V0 (Proc.devRef .tc main_arg3) = aC V0 :=
  (after_keep _ 10 stepOps267_ok main_arg3 (by decide +kernel) (val267 V0)).trans (val267_main_arg3 V0)
theorem val268_main_v3 (V0 : Valuation τ sig (Elt Ideal)) : val268 V0 (Proc.devRef .tc main_v3) = decay (aA V0) :=
  (after_keep _ 10 stepOps267_ok main_v3 (by decide +kernel) (val267 V0)).trans (val267_main_v3 V0)
theorem val268_h (V0 : Valuation τ sig (Elt Ideal)) : val268 V0 (Proc.devRef .tc main_v5355) = hI (aX V0) (aA V0) (aB V0) 267 := by
  refine ((step267_val (val267 V0)).1).trans ?_
  rw [val267_main_arg0 V0, val267_main_v3 V0, val267_main_arg2 V0, val267_h V0]
  exact (hI_at (aX V0) (aA V0) (aB V0) 266 267 (by decide) rfl).symm
theorem val268_y (V0 : Valuation τ sig (Elt Ideal)) : val268 V0 (Proc.devRef .tc main_v5363) = yJ (aX V0) (aA V0) (aB V0) (aC V0) 268 := by
  refine ((step267_val (val267 V0)).2).trans ?_
  rw [val267_main_arg0 V0, val267_main_v3 V0, val267_main_arg2 V0, val267_main_arg3 V0, val267_h V0, val267_y V0]
  rw [← hI_at (aX V0) (aA V0) (aB V0) 266 267 (by decide) rfl]
  exact (yJ_at (aX V0) (aA V0) (aB V0) (aC V0) 267 268 (by decide) rfl).symm
/-- The contents after step 268. -/
def val269 (V0 : Valuation τ sig (Elt Ideal)) : Valuation τ sig (Elt Ideal) := after (stepOps268 (F := Ideal)) (val268 V0)
theorem val269_main_arg0 (V0 : Valuation τ sig (Elt Ideal)) : val269 V0 (Proc.devRef .tc main_arg0) = aX V0 :=
  (after_keep _ 10 stepOps268_ok main_arg0 (by decide +kernel) (val268 V0)).trans (val268_main_arg0 V0)
theorem val269_main_arg1 (V0 : Valuation τ sig (Elt Ideal)) : val269 V0 (Proc.devRef .tc main_arg1) = aA V0 :=
  (after_keep _ 10 stepOps268_ok main_arg1 (by decide +kernel) (val268 V0)).trans (val268_main_arg1 V0)
theorem val269_main_arg2 (V0 : Valuation τ sig (Elt Ideal)) : val269 V0 (Proc.devRef .tc main_arg2) = aB V0 :=
  (after_keep _ 10 stepOps268_ok main_arg2 (by decide +kernel) (val268 V0)).trans (val268_main_arg2 V0)
theorem val269_main_arg3 (V0 : Valuation τ sig (Elt Ideal)) : val269 V0 (Proc.devRef .tc main_arg3) = aC V0 :=
  (after_keep _ 10 stepOps268_ok main_arg3 (by decide +kernel) (val268 V0)).trans (val268_main_arg3 V0)
theorem val269_main_v3 (V0 : Valuation τ sig (Elt Ideal)) : val269 V0 (Proc.devRef .tc main_v3) = decay (aA V0) :=
  (after_keep _ 10 stepOps268_ok main_v3 (by decide +kernel) (val268 V0)).trans (val268_main_v3 V0)
theorem val269_h (V0 : Valuation τ sig (Elt Ideal)) : val269 V0 (Proc.devRef .tc main_v5375) = hI (aX V0) (aA V0) (aB V0) 268 := by
  refine ((step268_val (val268 V0)).1).trans ?_
  rw [val268_main_arg0 V0, val268_main_v3 V0, val268_main_arg2 V0, val268_h V0]
  exact (hI_at (aX V0) (aA V0) (aB V0) 267 268 (by decide) rfl).symm
theorem val269_y (V0 : Valuation τ sig (Elt Ideal)) : val269 V0 (Proc.devRef .tc main_v5383) = yJ (aX V0) (aA V0) (aB V0) (aC V0) 269 := by
  refine ((step268_val (val268 V0)).2).trans ?_
  rw [val268_main_arg0 V0, val268_main_v3 V0, val268_main_arg2 V0, val268_main_arg3 V0, val268_h V0, val268_y V0]
  rw [← hI_at (aX V0) (aA V0) (aB V0) 267 268 (by decide) rfl]
  exact (yJ_at (aX V0) (aA V0) (aB V0) (aC V0) 268 269 (by decide) rfl).symm
/-- The contents after step 269. -/
def val270 (V0 : Valuation τ sig (Elt Ideal)) : Valuation τ sig (Elt Ideal) := after (stepOps269 (F := Ideal)) (val269 V0)
theorem val270_main_arg0 (V0 : Valuation τ sig (Elt Ideal)) : val270 V0 (Proc.devRef .tc main_arg0) = aX V0 :=
  (after_keep _ 10 stepOps269_ok main_arg0 (by decide +kernel) (val269 V0)).trans (val269_main_arg0 V0)
theorem val270_main_arg1 (V0 : Valuation τ sig (Elt Ideal)) : val270 V0 (Proc.devRef .tc main_arg1) = aA V0 :=
  (after_keep _ 10 stepOps269_ok main_arg1 (by decide +kernel) (val269 V0)).trans (val269_main_arg1 V0)
theorem val270_main_arg2 (V0 : Valuation τ sig (Elt Ideal)) : val270 V0 (Proc.devRef .tc main_arg2) = aB V0 :=
  (after_keep _ 10 stepOps269_ok main_arg2 (by decide +kernel) (val269 V0)).trans (val269_main_arg2 V0)
theorem val270_main_arg3 (V0 : Valuation τ sig (Elt Ideal)) : val270 V0 (Proc.devRef .tc main_arg3) = aC V0 :=
  (after_keep _ 10 stepOps269_ok main_arg3 (by decide +kernel) (val269 V0)).trans (val269_main_arg3 V0)
theorem val270_main_v3 (V0 : Valuation τ sig (Elt Ideal)) : val270 V0 (Proc.devRef .tc main_v3) = decay (aA V0) :=
  (after_keep _ 10 stepOps269_ok main_v3 (by decide +kernel) (val269 V0)).trans (val269_main_v3 V0)
theorem val270_h (V0 : Valuation τ sig (Elt Ideal)) : val270 V0 (Proc.devRef .tc main_v5395) = hI (aX V0) (aA V0) (aB V0) 269 := by
  refine ((step269_val (val269 V0)).1).trans ?_
  rw [val269_main_arg0 V0, val269_main_v3 V0, val269_main_arg2 V0, val269_h V0]
  exact (hI_at (aX V0) (aA V0) (aB V0) 268 269 (by decide) rfl).symm
theorem val270_y (V0 : Valuation τ sig (Elt Ideal)) : val270 V0 (Proc.devRef .tc main_v5403) = yJ (aX V0) (aA V0) (aB V0) (aC V0) 270 := by
  refine ((step269_val (val269 V0)).2).trans ?_
  rw [val269_main_arg0 V0, val269_main_v3 V0, val269_main_arg2 V0, val269_main_arg3 V0, val269_h V0, val269_y V0]
  rw [← hI_at (aX V0) (aA V0) (aB V0) 268 269 (by decide) rfl]
  exact (yJ_at (aX V0) (aA V0) (aB V0) (aC V0) 269 270 (by decide) rfl).symm
/-- The contents after step 270. -/
def val271 (V0 : Valuation τ sig (Elt Ideal)) : Valuation τ sig (Elt Ideal) := after (stepOps270 (F := Ideal)) (val270 V0)
theorem val271_main_arg0 (V0 : Valuation τ sig (Elt Ideal)) : val271 V0 (Proc.devRef .tc main_arg0) = aX V0 :=
  (after_keep _ 10 stepOps270_ok main_arg0 (by decide +kernel) (val270 V0)).trans (val270_main_arg0 V0)
theorem val271_main_arg1 (V0 : Valuation τ sig (Elt Ideal)) : val271 V0 (Proc.devRef .tc main_arg1) = aA V0 :=
  (after_keep _ 10 stepOps270_ok main_arg1 (by decide +kernel) (val270 V0)).trans (val270_main_arg1 V0)
theorem val271_main_arg2 (V0 : Valuation τ sig (Elt Ideal)) : val271 V0 (Proc.devRef .tc main_arg2) = aB V0 :=
  (after_keep _ 10 stepOps270_ok main_arg2 (by decide +kernel) (val270 V0)).trans (val270_main_arg2 V0)
theorem val271_main_arg3 (V0 : Valuation τ sig (Elt Ideal)) : val271 V0 (Proc.devRef .tc main_arg3) = aC V0 :=
  (after_keep _ 10 stepOps270_ok main_arg3 (by decide +kernel) (val270 V0)).trans (val270_main_arg3 V0)
theorem val271_main_v3 (V0 : Valuation τ sig (Elt Ideal)) : val271 V0 (Proc.devRef .tc main_v3) = decay (aA V0) :=
  (after_keep _ 10 stepOps270_ok main_v3 (by decide +kernel) (val270 V0)).trans (val270_main_v3 V0)
theorem val271_h (V0 : Valuation τ sig (Elt Ideal)) : val271 V0 (Proc.devRef .tc main_v5415) = hI (aX V0) (aA V0) (aB V0) 270 := by
  refine ((step270_val (val270 V0)).1).trans ?_
  rw [val270_main_arg0 V0, val270_main_v3 V0, val270_main_arg2 V0, val270_h V0]
  exact (hI_at (aX V0) (aA V0) (aB V0) 269 270 (by decide) rfl).symm
theorem val271_y (V0 : Valuation τ sig (Elt Ideal)) : val271 V0 (Proc.devRef .tc main_v5423) = yJ (aX V0) (aA V0) (aB V0) (aC V0) 271 := by
  refine ((step270_val (val270 V0)).2).trans ?_
  rw [val270_main_arg0 V0, val270_main_v3 V0, val270_main_arg2 V0, val270_main_arg3 V0, val270_h V0, val270_y V0]
  rw [← hI_at (aX V0) (aA V0) (aB V0) 269 270 (by decide) rfl]
  exact (yJ_at (aX V0) (aA V0) (aB V0) (aC V0) 270 271 (by decide) rfl).symm
/-- The contents after step 271. -/
def val272 (V0 : Valuation τ sig (Elt Ideal)) : Valuation τ sig (Elt Ideal) := after (stepOps271 (F := Ideal)) (val271 V0)
theorem val272_main_arg0 (V0 : Valuation τ sig (Elt Ideal)) : val272 V0 (Proc.devRef .tc main_arg0) = aX V0 :=
  (after_keep _ 10 stepOps271_ok main_arg0 (by decide +kernel) (val271 V0)).trans (val271_main_arg0 V0)
theorem val272_main_arg1 (V0 : Valuation τ sig (Elt Ideal)) : val272 V0 (Proc.devRef .tc main_arg1) = aA V0 :=
  (after_keep _ 10 stepOps271_ok main_arg1 (by decide +kernel) (val271 V0)).trans (val271_main_arg1 V0)
theorem val272_main_arg2 (V0 : Valuation τ sig (Elt Ideal)) : val272 V0 (Proc.devRef .tc main_arg2) = aB V0 :=
  (after_keep _ 10 stepOps271_ok main_arg2 (by decide +kernel) (val271 V0)).trans (val271_main_arg2 V0)
theorem val272_main_arg3 (V0 : Valuation τ sig (Elt Ideal)) : val272 V0 (Proc.devRef .tc main_arg3) = aC V0 :=
  (after_keep _ 10 stepOps271_ok main_arg3 (by decide +kernel) (val271 V0)).trans (val271_main_arg3 V0)
theorem val272_main_v3 (V0 : Valuation τ sig (Elt Ideal)) : val272 V0 (Proc.devRef .tc main_v3) = decay (aA V0) :=
  (after_keep _ 10 stepOps271_ok main_v3 (by decide +kernel) (val271 V0)).trans (val271_main_v3 V0)
theorem val272_h (V0 : Valuation τ sig (Elt Ideal)) : val272 V0 (Proc.devRef .tc main_v5435) = hI (aX V0) (aA V0) (aB V0) 271 := by
  refine ((step271_val (val271 V0)).1).trans ?_
  rw [val271_main_arg0 V0, val271_main_v3 V0, val271_main_arg2 V0, val271_h V0]
  exact (hI_at (aX V0) (aA V0) (aB V0) 270 271 (by decide) rfl).symm
theorem val272_y (V0 : Valuation τ sig (Elt Ideal)) : val272 V0 (Proc.devRef .tc main_v5443) = yJ (aX V0) (aA V0) (aB V0) (aC V0) 272 := by
  refine ((step271_val (val271 V0)).2).trans ?_
  rw [val271_main_arg0 V0, val271_main_v3 V0, val271_main_arg2 V0, val271_main_arg3 V0, val271_h V0, val271_y V0]
  rw [← hI_at (aX V0) (aA V0) (aB V0) 270 271 (by decide) rfl]
  exact (yJ_at (aX V0) (aA V0) (aB V0) (aC V0) 271 272 (by decide) rfl).symm
/-- The contents after step 272. -/
def val273 (V0 : Valuation τ sig (Elt Ideal)) : Valuation τ sig (Elt Ideal) := after (stepOps272 (F := Ideal)) (val272 V0)
theorem val273_main_arg0 (V0 : Valuation τ sig (Elt Ideal)) : val273 V0 (Proc.devRef .tc main_arg0) = aX V0 :=
  (after_keep _ 10 stepOps272_ok main_arg0 (by decide +kernel) (val272 V0)).trans (val272_main_arg0 V0)
theorem val273_main_arg1 (V0 : Valuation τ sig (Elt Ideal)) : val273 V0 (Proc.devRef .tc main_arg1) = aA V0 :=
  (after_keep _ 10 stepOps272_ok main_arg1 (by decide +kernel) (val272 V0)).trans (val272_main_arg1 V0)
theorem val273_main_arg2 (V0 : Valuation τ sig (Elt Ideal)) : val273 V0 (Proc.devRef .tc main_arg2) = aB V0 :=
  (after_keep _ 10 stepOps272_ok main_arg2 (by decide +kernel) (val272 V0)).trans (val272_main_arg2 V0)
theorem val273_main_arg3 (V0 : Valuation τ sig (Elt Ideal)) : val273 V0 (Proc.devRef .tc main_arg3) = aC V0 :=
  (after_keep _ 10 stepOps272_ok main_arg3 (by decide +kernel) (val272 V0)).trans (val272_main_arg3 V0)
theorem val273_main_v3 (V0 : Valuation τ sig (Elt Ideal)) : val273 V0 (Proc.devRef .tc main_v3) = decay (aA V0) :=
  (after_keep _ 10 stepOps272_ok main_v3 (by decide +kernel) (val272 V0)).trans (val272_main_v3 V0)
theorem val273_h (V0 : Valuation τ sig (Elt Ideal)) : val273 V0 (Proc.devRef .tc main_v5455) = hI (aX V0) (aA V0) (aB V0) 272 := by
  refine ((step272_val (val272 V0)).1).trans ?_
  rw [val272_main_arg0 V0, val272_main_v3 V0, val272_main_arg2 V0, val272_h V0]
  exact (hI_at (aX V0) (aA V0) (aB V0) 271 272 (by decide) rfl).symm
theorem val273_y (V0 : Valuation τ sig (Elt Ideal)) : val273 V0 (Proc.devRef .tc main_v5463) = yJ (aX V0) (aA V0) (aB V0) (aC V0) 273 := by
  refine ((step272_val (val272 V0)).2).trans ?_
  rw [val272_main_arg0 V0, val272_main_v3 V0, val272_main_arg2 V0, val272_main_arg3 V0, val272_h V0, val272_y V0]
  rw [← hI_at (aX V0) (aA V0) (aB V0) 271 272 (by decide) rfl]
  exact (yJ_at (aX V0) (aA V0) (aB V0) (aC V0) 272 273 (by decide) rfl).symm
/-- The contents after step 273. -/
def val274 (V0 : Valuation τ sig (Elt Ideal)) : Valuation τ sig (Elt Ideal) := after (stepOps273 (F := Ideal)) (val273 V0)
theorem val274_main_arg0 (V0 : Valuation τ sig (Elt Ideal)) : val274 V0 (Proc.devRef .tc main_arg0) = aX V0 :=
  (after_keep _ 10 stepOps273_ok main_arg0 (by decide +kernel) (val273 V0)).trans (val273_main_arg0 V0)
theorem val274_main_arg1 (V0 : Valuation τ sig (Elt Ideal)) : val274 V0 (Proc.devRef .tc main_arg1) = aA V0 :=
  (after_keep _ 10 stepOps273_ok main_arg1 (by decide +kernel) (val273 V0)).trans (val273_main_arg1 V0)
theorem val274_main_arg2 (V0 : Valuation τ sig (Elt Ideal)) : val274 V0 (Proc.devRef .tc main_arg2) = aB V0 :=
  (after_keep _ 10 stepOps273_ok main_arg2 (by decide +kernel) (val273 V0)).trans (val273_main_arg2 V0)
theorem val274_main_arg3 (V0 : Valuation τ sig (Elt Ideal)) : val274 V0 (Proc.devRef .tc main_arg3) = aC V0 :=
  (after_keep _ 10 stepOps273_ok main_arg3 (by decide +kernel) (val273 V0)).trans (val273_main_arg3 V0)
theorem val274_main_v3 (V0 : Valuation τ sig (Elt Ideal)) : val274 V0 (Proc.devRef .tc main_v3) = decay (aA V0) :=
  (after_keep _ 10 stepOps273_ok main_v3 (by decide +kernel) (val273 V0)).trans (val273_main_v3 V0)
theorem val274_h (V0 : Valuation τ sig (Elt Ideal)) : val274 V0 (Proc.devRef .tc main_v5475) = hI (aX V0) (aA V0) (aB V0) 273 := by
  refine ((step273_val (val273 V0)).1).trans ?_
  rw [val273_main_arg0 V0, val273_main_v3 V0, val273_main_arg2 V0, val273_h V0]
  exact (hI_at (aX V0) (aA V0) (aB V0) 272 273 (by decide) rfl).symm
theorem val274_y (V0 : Valuation τ sig (Elt Ideal)) : val274 V0 (Proc.devRef .tc main_v5483) = yJ (aX V0) (aA V0) (aB V0) (aC V0) 274 := by
  refine ((step273_val (val273 V0)).2).trans ?_
  rw [val273_main_arg0 V0, val273_main_v3 V0, val273_main_arg2 V0, val273_main_arg3 V0, val273_h V0, val273_y V0]
  rw [← hI_at (aX V0) (aA V0) (aB V0) 272 273 (by decide) rfl]
  exact (yJ_at (aX V0) (aA V0) (aB V0) (aC V0) 273 274 (by decide) rfl).symm
/-- The contents after step 274. -/
def val275 (V0 : Valuation τ sig (Elt Ideal)) : Valuation τ sig (Elt Ideal) := after (stepOps274 (F := Ideal)) (val274 V0)
theorem val275_main_arg0 (V0 : Valuation τ sig (Elt Ideal)) : val275 V0 (Proc.devRef .tc main_arg0) = aX V0 :=
  (after_keep _ 10 stepOps274_ok main_arg0 (by decide +kernel) (val274 V0)).trans (val274_main_arg0 V0)
theorem val275_main_arg1 (V0 : Valuation τ sig (Elt Ideal)) : val275 V0 (Proc.devRef .tc main_arg1) = aA V0 :=
  (after_keep _ 10 stepOps274_ok main_arg1 (by decide +kernel) (val274 V0)).trans (val274_main_arg1 V0)
theorem val275_main_arg2 (V0 : Valuation τ sig (Elt Ideal)) : val275 V0 (Proc.devRef .tc main_arg2) = aB V0 :=
  (after_keep _ 10 stepOps274_ok main_arg2 (by decide +kernel) (val274 V0)).trans (val274_main_arg2 V0)
theorem val275_main_arg3 (V0 : Valuation τ sig (Elt Ideal)) : val275 V0 (Proc.devRef .tc main_arg3) = aC V0 :=
  (after_keep _ 10 stepOps274_ok main_arg3 (by decide +kernel) (val274 V0)).trans (val274_main_arg3 V0)
theorem val275_main_v3 (V0 : Valuation τ sig (Elt Ideal)) : val275 V0 (Proc.devRef .tc main_v3) = decay (aA V0) :=
  (after_keep _ 10 stepOps274_ok main_v3 (by decide +kernel) (val274 V0)).trans (val274_main_v3 V0)
theorem val275_h (V0 : Valuation τ sig (Elt Ideal)) : val275 V0 (Proc.devRef .tc main_v5495) = hI (aX V0) (aA V0) (aB V0) 274 := by
  refine ((step274_val (val274 V0)).1).trans ?_
  rw [val274_main_arg0 V0, val274_main_v3 V0, val274_main_arg2 V0, val274_h V0]
  exact (hI_at (aX V0) (aA V0) (aB V0) 273 274 (by decide) rfl).symm
theorem val275_y (V0 : Valuation τ sig (Elt Ideal)) : val275 V0 (Proc.devRef .tc main_v5503) = yJ (aX V0) (aA V0) (aB V0) (aC V0) 275 := by
  refine ((step274_val (val274 V0)).2).trans ?_
  rw [val274_main_arg0 V0, val274_main_v3 V0, val274_main_arg2 V0, val274_main_arg3 V0, val274_h V0, val274_y V0]
  rw [← hI_at (aX V0) (aA V0) (aB V0) 273 274 (by decide) rfl]
  exact (yJ_at (aX V0) (aA V0) (aB V0) (aC V0) 274 275 (by decide) rfl).symm
/-- The contents after step 275. -/
def val276 (V0 : Valuation τ sig (Elt Ideal)) : Valuation τ sig (Elt Ideal) := after (stepOps275 (F := Ideal)) (val275 V0)
theorem val276_main_arg0 (V0 : Valuation τ sig (Elt Ideal)) : val276 V0 (Proc.devRef .tc main_arg0) = aX V0 :=
  (after_keep _ 10 stepOps275_ok main_arg0 (by decide +kernel) (val275 V0)).trans (val275_main_arg0 V0)
theorem val276_main_arg1 (V0 : Valuation τ sig (Elt Ideal)) : val276 V0 (Proc.devRef .tc main_arg1) = aA V0 :=
  (after_keep _ 10 stepOps275_ok main_arg1 (by decide +kernel) (val275 V0)).trans (val275_main_arg1 V0)
theorem val276_main_arg2 (V0 : Valuation τ sig (Elt Ideal)) : val276 V0 (Proc.devRef .tc main_arg2) = aB V0 :=
  (after_keep _ 10 stepOps275_ok main_arg2 (by decide +kernel) (val275 V0)).trans (val275_main_arg2 V0)
theorem val276_main_arg3 (V0 : Valuation τ sig (Elt Ideal)) : val276 V0 (Proc.devRef .tc main_arg3) = aC V0 :=
  (after_keep _ 10 stepOps275_ok main_arg3 (by decide +kernel) (val275 V0)).trans (val275_main_arg3 V0)
theorem val276_main_v3 (V0 : Valuation τ sig (Elt Ideal)) : val276 V0 (Proc.devRef .tc main_v3) = decay (aA V0) :=
  (after_keep _ 10 stepOps275_ok main_v3 (by decide +kernel) (val275 V0)).trans (val275_main_v3 V0)
theorem val276_h (V0 : Valuation τ sig (Elt Ideal)) : val276 V0 (Proc.devRef .tc main_v5515) = hI (aX V0) (aA V0) (aB V0) 275 := by
  refine ((step275_val (val275 V0)).1).trans ?_
  rw [val275_main_arg0 V0, val275_main_v3 V0, val275_main_arg2 V0, val275_h V0]
  exact (hI_at (aX V0) (aA V0) (aB V0) 274 275 (by decide) rfl).symm
theorem val276_y (V0 : Valuation τ sig (Elt Ideal)) : val276 V0 (Proc.devRef .tc main_v5523) = yJ (aX V0) (aA V0) (aB V0) (aC V0) 276 := by
  refine ((step275_val (val275 V0)).2).trans ?_
  rw [val275_main_arg0 V0, val275_main_v3 V0, val275_main_arg2 V0, val275_main_arg3 V0, val275_h V0, val275_y V0]
  rw [← hI_at (aX V0) (aA V0) (aB V0) 274 275 (by decide) rfl]
  exact (yJ_at (aX V0) (aA V0) (aB V0) (aC V0) 275 276 (by decide) rfl).symm
/-- The contents after step 276. -/
def val277 (V0 : Valuation τ sig (Elt Ideal)) : Valuation τ sig (Elt Ideal) := after (stepOps276 (F := Ideal)) (val276 V0)
theorem val277_main_arg0 (V0 : Valuation τ sig (Elt Ideal)) : val277 V0 (Proc.devRef .tc main_arg0) = aX V0 :=
  (after_keep _ 10 stepOps276_ok main_arg0 (by decide +kernel) (val276 V0)).trans (val276_main_arg0 V0)
theorem val277_main_arg1 (V0 : Valuation τ sig (Elt Ideal)) : val277 V0 (Proc.devRef .tc main_arg1) = aA V0 :=
  (after_keep _ 10 stepOps276_ok main_arg1 (by decide +kernel) (val276 V0)).trans (val276_main_arg1 V0)
theorem val277_main_arg2 (V0 : Valuation τ sig (Elt Ideal)) : val277 V0 (Proc.devRef .tc main_arg2) = aB V0 :=
  (after_keep _ 10 stepOps276_ok main_arg2 (by decide +kernel) (val276 V0)).trans (val276_main_arg2 V0)
theorem val277_main_arg3 (V0 : Valuation τ sig (Elt Ideal)) : val277 V0 (Proc.devRef .tc main_arg3) = aC V0 :=
  (after_keep _ 10 stepOps276_ok main_arg3 (by decide +kernel) (val276 V0)).trans (val276_main_arg3 V0)
theorem val277_main_v3 (V0 : Valuation τ sig (Elt Ideal)) : val277 V0 (Proc.devRef .tc main_v3) = decay (aA V0) :=
  (after_keep _ 10 stepOps276_ok main_v3 (by decide +kernel) (val276 V0)).trans (val276_main_v3 V0)
theorem val277_h (V0 : Valuation τ sig (Elt Ideal)) : val277 V0 (Proc.devRef .tc main_v5535) = hI (aX V0) (aA V0) (aB V0) 276 := by
  refine ((step276_val (val276 V0)).1).trans ?_
  rw [val276_main_arg0 V0, val276_main_v3 V0, val276_main_arg2 V0, val276_h V0]
  exact (hI_at (aX V0) (aA V0) (aB V0) 275 276 (by decide) rfl).symm
theorem val277_y (V0 : Valuation τ sig (Elt Ideal)) : val277 V0 (Proc.devRef .tc main_v5543) = yJ (aX V0) (aA V0) (aB V0) (aC V0) 277 := by
  refine ((step276_val (val276 V0)).2).trans ?_
  rw [val276_main_arg0 V0, val276_main_v3 V0, val276_main_arg2 V0, val276_main_arg3 V0, val276_h V0, val276_y V0]
  rw [← hI_at (aX V0) (aA V0) (aB V0) 275 276 (by decide) rfl]
  exact (yJ_at (aX V0) (aA V0) (aB V0) (aC V0) 276 277 (by decide) rfl).symm
/-- The contents after step 277. -/
def val278 (V0 : Valuation τ sig (Elt Ideal)) : Valuation τ sig (Elt Ideal) := after (stepOps277 (F := Ideal)) (val277 V0)
theorem val278_main_arg0 (V0 : Valuation τ sig (Elt Ideal)) : val278 V0 (Proc.devRef .tc main_arg0) = aX V0 :=
  (after_keep _ 10 stepOps277_ok main_arg0 (by decide +kernel) (val277 V0)).trans (val277_main_arg0 V0)
theorem val278_main_arg1 (V0 : Valuation τ sig (Elt Ideal)) : val278 V0 (Proc.devRef .tc main_arg1) = aA V0 :=
  (after_keep _ 10 stepOps277_ok main_arg1 (by decide +kernel) (val277 V0)).trans (val277_main_arg1 V0)
theorem val278_main_arg2 (V0 : Valuation τ sig (Elt Ideal)) : val278 V0 (Proc.devRef .tc main_arg2) = aB V0 :=
  (after_keep _ 10 stepOps277_ok main_arg2 (by decide +kernel) (val277 V0)).trans (val277_main_arg2 V0)
theorem val278_main_arg3 (V0 : Valuation τ sig (Elt Ideal)) : val278 V0 (Proc.devRef .tc main_arg3) = aC V0 :=
  (after_keep _ 10 stepOps277_ok main_arg3 (by decide +kernel) (val277 V0)).trans (val277_main_arg3 V0)
theorem val278_main_v3 (V0 : Valuation τ sig (Elt Ideal)) : val278 V0 (Proc.devRef .tc main_v3) = decay (aA V0) :=
  (after_keep _ 10 stepOps277_ok main_v3 (by decide +kernel) (val277 V0)).trans (val277_main_v3 V0)
theorem val278_h (V0 : Valuation τ sig (Elt Ideal)) : val278 V0 (Proc.devRef .tc main_v5555) = hI (aX V0) (aA V0) (aB V0) 277 := by
  refine ((step277_val (val277 V0)).1).trans ?_
  rw [val277_main_arg0 V0, val277_main_v3 V0, val277_main_arg2 V0, val277_h V0]
  exact (hI_at (aX V0) (aA V0) (aB V0) 276 277 (by decide) rfl).symm
theorem val278_y (V0 : Valuation τ sig (Elt Ideal)) : val278 V0 (Proc.devRef .tc main_v5563) = yJ (aX V0) (aA V0) (aB V0) (aC V0) 278 := by
  refine ((step277_val (val277 V0)).2).trans ?_
  rw [val277_main_arg0 V0, val277_main_v3 V0, val277_main_arg2 V0, val277_main_arg3 V0, val277_h V0, val277_y V0]
  rw [← hI_at (aX V0) (aA V0) (aB V0) 276 277 (by decide) rfl]
  exact (yJ_at (aX V0) (aA V0) (aB V0) (aC V0) 277 278 (by decide) rfl).symm
/-- The contents after step 278. -/
def val279 (V0 : Valuation τ sig (Elt Ideal)) : Valuation τ sig (Elt Ideal) := after (stepOps278 (F := Ideal)) (val278 V0)
theorem val279_main_arg0 (V0 : Valuation τ sig (Elt Ideal)) : val279 V0 (Proc.devRef .tc main_arg0) = aX V0 :=
  (after_keep _ 10 stepOps278_ok main_arg0 (by decide +kernel) (val278 V0)).trans (val278_main_arg0 V0)
theorem val279_main_arg1 (V0 : Valuation τ sig (Elt Ideal)) : val279 V0 (Proc.devRef .tc main_arg1) = aA V0 :=
  (after_keep _ 10 stepOps278_ok main_arg1 (by decide +kernel) (val278 V0)).trans (val278_main_arg1 V0)
theorem val279_main_arg2 (V0 : Valuation τ sig (Elt Ideal)) : val279 V0 (Proc.devRef .tc main_arg2) = aB V0 :=
  (after_keep _ 10 stepOps278_ok main_arg2 (by decide +kernel) (val278 V0)).trans (val278_main_arg2 V0)
theorem val279_main_arg3 (V0 : Valuation τ sig (Elt Ideal)) : val279 V0 (Proc.devRef .tc main_arg3) = aC V0 :=
  (after_keep _ 10 stepOps278_ok main_arg3 (by decide +kernel) (val278 V0)).trans (val278_main_arg3 V0)
theorem val279_main_v3 (V0 : Valuation τ sig (Elt Ideal)) : val279 V0 (Proc.devRef .tc main_v3) = decay (aA V0) :=
  (after_keep _ 10 stepOps278_ok main_v3 (by decide +kernel) (val278 V0)).trans (val278_main_v3 V0)
theorem val279_h (V0 : Valuation τ sig (Elt Ideal)) : val279 V0 (Proc.devRef .tc main_v5575) = hI (aX V0) (aA V0) (aB V0) 278 := by
  refine ((step278_val (val278 V0)).1).trans ?_
  rw [val278_main_arg0 V0, val278_main_v3 V0, val278_main_arg2 V0, val278_h V0]
  exact (hI_at (aX V0) (aA V0) (aB V0) 277 278 (by decide) rfl).symm
theorem val279_y (V0 : Valuation τ sig (Elt Ideal)) : val279 V0 (Proc.devRef .tc main_v5583) = yJ (aX V0) (aA V0) (aB V0) (aC V0) 279 := by
  refine ((step278_val (val278 V0)).2).trans ?_
  rw [val278_main_arg0 V0, val278_main_v3 V0, val278_main_arg2 V0, val278_main_arg3 V0, val278_h V0, val278_y V0]
  rw [← hI_at (aX V0) (aA V0) (aB V0) 277 278 (by decide) rfl]
  exact (yJ_at (aX V0) (aA V0) (aB V0) (aC V0) 278 279 (by decide) rfl).symm
/-- The contents after step 279. -/
def val280 (V0 : Valuation τ sig (Elt Ideal)) : Valuation τ sig (Elt Ideal) := after (stepOps279 (F := Ideal)) (val279 V0)
theorem val280_main_arg0 (V0 : Valuation τ sig (Elt Ideal)) : val280 V0 (Proc.devRef .tc main_arg0) = aX V0 :=
  (after_keep _ 10 stepOps279_ok main_arg0 (by decide +kernel) (val279 V0)).trans (val279_main_arg0 V0)
theorem val280_main_arg1 (V0 : Valuation τ sig (Elt Ideal)) : val280 V0 (Proc.devRef .tc main_arg1) = aA V0 :=
  (after_keep _ 10 stepOps279_ok main_arg1 (by decide +kernel) (val279 V0)).trans (val279_main_arg1 V0)
theorem val280_main_arg2 (V0 : Valuation τ sig (Elt Ideal)) : val280 V0 (Proc.devRef .tc main_arg2) = aB V0 :=
  (after_keep _ 10 stepOps279_ok main_arg2 (by decide +kernel) (val279 V0)).trans (val279_main_arg2 V0)
theorem val280_main_arg3 (V0 : Valuation τ sig (Elt Ideal)) : val280 V0 (Proc.devRef .tc main_arg3) = aC V0 :=
  (after_keep _ 10 stepOps279_ok main_arg3 (by decide +kernel) (val279 V0)).trans (val279_main_arg3 V0)
theorem val280_main_v3 (V0 : Valuation τ sig (Elt Ideal)) : val280 V0 (Proc.devRef .tc main_v3) = decay (aA V0) :=
  (after_keep _ 10 stepOps279_ok main_v3 (by decide +kernel) (val279 V0)).trans (val279_main_v3 V0)
theorem val280_h (V0 : Valuation τ sig (Elt Ideal)) : val280 V0 (Proc.devRef .tc main_v5595) = hI (aX V0) (aA V0) (aB V0) 279 := by
  refine ((step279_val (val279 V0)).1).trans ?_
  rw [val279_main_arg0 V0, val279_main_v3 V0, val279_main_arg2 V0, val279_h V0]
  exact (hI_at (aX V0) (aA V0) (aB V0) 278 279 (by decide) rfl).symm
theorem val280_y (V0 : Valuation τ sig (Elt Ideal)) : val280 V0 (Proc.devRef .tc main_v5603) = yJ (aX V0) (aA V0) (aB V0) (aC V0) 280 := by
  refine ((step279_val (val279 V0)).2).trans ?_
  rw [val279_main_arg0 V0, val279_main_v3 V0, val279_main_arg2 V0, val279_main_arg3 V0, val279_h V0, val279_y V0]
  rw [← hI_at (aX V0) (aA V0) (aB V0) 278 279 (by decide) rfl]
  exact (yJ_at (aX V0) (aA V0) (aB V0) (aC V0) 279 280 (by decide) rfl).symm
/-- The contents after step 280. -/
def val281 (V0 : Valuation τ sig (Elt Ideal)) : Valuation τ sig (Elt Ideal) := after (stepOps280 (F := Ideal)) (val280 V0)
theorem val281_main_arg0 (V0 : Valuation τ sig (Elt Ideal)) : val281 V0 (Proc.devRef .tc main_arg0) = aX V0 :=
  (after_keep _ 10 stepOps280_ok main_arg0 (by decide +kernel) (val280 V0)).trans (val280_main_arg0 V0)
theorem val281_main_arg1 (V0 : Valuation τ sig (Elt Ideal)) : val281 V0 (Proc.devRef .tc main_arg1) = aA V0 :=
  (after_keep _ 10 stepOps280_ok main_arg1 (by decide +kernel) (val280 V0)).trans (val280_main_arg1 V0)
theorem val281_main_arg2 (V0 : Valuation τ sig (Elt Ideal)) : val281 V0 (Proc.devRef .tc main_arg2) = aB V0 :=
  (after_keep _ 10 stepOps280_ok main_arg2 (by decide +kernel) (val280 V0)).trans (val280_main_arg2 V0)
theorem val281_main_arg3 (V0 : Valuation τ sig (Elt Ideal)) : val281 V0 (Proc.devRef .tc main_arg3) = aC V0 :=
  (after_keep _ 10 stepOps280_ok main_arg3 (by decide +kernel) (val280 V0)).trans (val280_main_arg3 V0)
theorem val281_main_v3 (V0 : Valuation τ sig (Elt Ideal)) : val281 V0 (Proc.devRef .tc main_v3) = decay (aA V0) :=
  (after_keep _ 10 stepOps280_ok main_v3 (by decide +kernel) (val280 V0)).trans (val280_main_v3 V0)
theorem val281_h (V0 : Valuation τ sig (Elt Ideal)) : val281 V0 (Proc.devRef .tc main_v5615) = hI (aX V0) (aA V0) (aB V0) 280 := by
  refine ((step280_val (val280 V0)).1).trans ?_
  rw [val280_main_arg0 V0, val280_main_v3 V0, val280_main_arg2 V0, val280_h V0]
  exact (hI_at (aX V0) (aA V0) (aB V0) 279 280 (by decide) rfl).symm
theorem val281_y (V0 : Valuation τ sig (Elt Ideal)) : val281 V0 (Proc.devRef .tc main_v5623) = yJ (aX V0) (aA V0) (aB V0) (aC V0) 281 := by
  refine ((step280_val (val280 V0)).2).trans ?_
  rw [val280_main_arg0 V0, val280_main_v3 V0, val280_main_arg2 V0, val280_main_arg3 V0, val280_h V0, val280_y V0]
  rw [← hI_at (aX V0) (aA V0) (aB V0) 279 280 (by decide) rfl]
  exact (yJ_at (aX V0) (aA V0) (aB V0) (aC V0) 280 281 (by decide) rfl).symm
/-- The contents after step 281. -/
def val282 (V0 : Valuation τ sig (Elt Ideal)) : Valuation τ sig (Elt Ideal) := after (stepOps281 (F := Ideal)) (val281 V0)
theorem val282_main_arg0 (V0 : Valuation τ sig (Elt Ideal)) : val282 V0 (Proc.devRef .tc main_arg0) = aX V0 :=
  (after_keep _ 10 stepOps281_ok main_arg0 (by decide +kernel) (val281 V0)).trans (val281_main_arg0 V0)
theorem val282_main_arg1 (V0 : Valuation τ sig (Elt Ideal)) : val282 V0 (Proc.devRef .tc main_arg1) = aA V0 :=
  (after_keep _ 10 stepOps281_ok main_arg1 (by decide +kernel) (val281 V0)).trans (val281_main_arg1 V0)
theorem val282_main_arg2 (V0 : Valuation τ sig (Elt Ideal)) : val282 V0 (Proc.devRef .tc main_arg2) = aB V0 :=
  (after_keep _ 10 stepOps281_ok main_arg2 (by decide +kernel) (val281 V0)).trans (val281_main_arg2 V0)
theorem val282_main_arg3 (V0 : Valuation τ sig (Elt Ideal)) : val282 V0 (Proc.devRef .tc main_arg3) = aC V0 :=
  (after_keep _ 10 stepOps281_ok main_arg3 (by decide +kernel) (val281 V0)).trans (val281_main_arg3 V0)
theorem val282_main_v3 (V0 : Valuation τ sig (Elt Ideal)) : val282 V0 (Proc.devRef .tc main_v3) = decay (aA V0) :=
  (after_keep _ 10 stepOps281_ok main_v3 (by decide +kernel) (val281 V0)).trans (val281_main_v3 V0)
theorem val282_h (V0 : Valuation τ sig (Elt Ideal)) : val282 V0 (Proc.devRef .tc main_v5635) = hI (aX V0) (aA V0) (aB V0) 281 := by
  refine ((step281_val (val281 V0)).1).trans ?_
  rw [val281_main_arg0 V0, val281_main_v3 V0, val281_main_arg2 V0, val281_h V0]
  exact (hI_at (aX V0) (aA V0) (aB V0) 280 281 (by decide) rfl).symm
theorem val282_y (V0 : Valuation τ sig (Elt Ideal)) : val282 V0 (Proc.devRef .tc main_v5643) = yJ (aX V0) (aA V0) (aB V0) (aC V0) 282 := by
  refine ((step281_val (val281 V0)).2).trans ?_
  rw [val281_main_arg0 V0, val281_main_v3 V0, val281_main_arg2 V0, val281_main_arg3 V0, val281_h V0, val281_y V0]
  rw [← hI_at (aX V0) (aA V0) (aB V0) 280 281 (by decide) rfl]
  exact (yJ_at (aX V0) (aA V0) (aB V0) (aC V0) 281 282 (by decide) rfl).symm
/-- The contents after step 282. -/
def val283 (V0 : Valuation τ sig (Elt Ideal)) : Valuation τ sig (Elt Ideal) := after (stepOps282 (F := Ideal)) (val282 V0)
theorem val283_main_arg0 (V0 : Valuation τ sig (Elt Ideal)) : val283 V0 (Proc.devRef .tc main_arg0) = aX V0 :=
  (after_keep _ 10 stepOps282_ok main_arg0 (by decide +kernel) (val282 V0)).trans (val282_main_arg0 V0)
theorem val283_main_arg1 (V0 : Valuation τ sig (Elt Ideal)) : val283 V0 (Proc.devRef .tc main_arg1) = aA V0 :=
  (after_keep _ 10 stepOps282_ok main_arg1 (by decide +kernel) (val282 V0)).trans (val282_main_arg1 V0)
theorem val283_main_arg2 (V0 : Valuation τ sig (Elt Ideal)) : val283 V0 (Proc.devRef .tc main_arg2) = aB V0 :=
  (after_keep _ 10 stepOps282_ok main_arg2 (by decide +kernel) (val282 V0)).trans (val282_main_arg2 V0)
theorem val283_main_arg3 (V0 : Valuation τ sig (Elt Ideal)) : val283 V0 (Proc.devRef .tc main_arg3) = aC V0 :=
  (after_keep _ 10 stepOps282_ok main_arg3 (by decide +kernel) (val282 V0)).trans (val282_main_arg3 V0)
theorem val283_main_v3 (V0 : Valuation τ sig (Elt Ideal)) : val283 V0 (Proc.devRef .tc main_v3) = decay (aA V0) :=
  (after_keep _ 10 stepOps282_ok main_v3 (by decide +kernel) (val282 V0)).trans (val282_main_v3 V0)
theorem val283_h (V0 : Valuation τ sig (Elt Ideal)) : val283 V0 (Proc.devRef .tc main_v5655) = hI (aX V0) (aA V0) (aB V0) 282 := by
  refine ((step282_val (val282 V0)).1).trans ?_
  rw [val282_main_arg0 V0, val282_main_v3 V0, val282_main_arg2 V0, val282_h V0]
  exact (hI_at (aX V0) (aA V0) (aB V0) 281 282 (by decide) rfl).symm
theorem val283_y (V0 : Valuation τ sig (Elt Ideal)) : val283 V0 (Proc.devRef .tc main_v5663) = yJ (aX V0) (aA V0) (aB V0) (aC V0) 283 := by
  refine ((step282_val (val282 V0)).2).trans ?_
  rw [val282_main_arg0 V0, val282_main_v3 V0, val282_main_arg2 V0, val282_main_arg3 V0, val282_h V0, val282_y V0]
  rw [← hI_at (aX V0) (aA V0) (aB V0) 281 282 (by decide) rfl]
  exact (yJ_at (aX V0) (aA V0) (aB V0) (aC V0) 282 283 (by decide) rfl).symm
/-- The contents after step 283. -/
def val284 (V0 : Valuation τ sig (Elt Ideal)) : Valuation τ sig (Elt Ideal) := after (stepOps283 (F := Ideal)) (val283 V0)
theorem val284_main_arg0 (V0 : Valuation τ sig (Elt Ideal)) : val284 V0 (Proc.devRef .tc main_arg0) = aX V0 :=
  (after_keep _ 10 stepOps283_ok main_arg0 (by decide +kernel) (val283 V0)).trans (val283_main_arg0 V0)
theorem val284_main_arg1 (V0 : Valuation τ sig (Elt Ideal)) : val284 V0 (Proc.devRef .tc main_arg1) = aA V0 :=
  (after_keep _ 10 stepOps283_ok main_arg1 (by decide +kernel) (val283 V0)).trans (val283_main_arg1 V0)
theorem val284_main_arg2 (V0 : Valuation τ sig (Elt Ideal)) : val284 V0 (Proc.devRef .tc main_arg2) = aB V0 :=
  (after_keep _ 10 stepOps283_ok main_arg2 (by decide +kernel) (val283 V0)).trans (val283_main_arg2 V0)
theorem val284_main_arg3 (V0 : Valuation τ sig (Elt Ideal)) : val284 V0 (Proc.devRef .tc main_arg3) = aC V0 :=
  (after_keep _ 10 stepOps283_ok main_arg3 (by decide +kernel) (val283 V0)).trans (val283_main_arg3 V0)
theorem val284_main_v3 (V0 : Valuation τ sig (Elt Ideal)) : val284 V0 (Proc.devRef .tc main_v3) = decay (aA V0) :=
  (after_keep _ 10 stepOps283_ok main_v3 (by decide +kernel) (val283 V0)).trans (val283_main_v3 V0)
theorem val284_h (V0 : Valuation τ sig (Elt Ideal)) : val284 V0 (Proc.devRef .tc main_v5675) = hI (aX V0) (aA V0) (aB V0) 283 := by
  refine ((step283_val (val283 V0)).1).trans ?_
  rw [val283_main_arg0 V0, val283_main_v3 V0, val283_main_arg2 V0, val283_h V0]
  exact (hI_at (aX V0) (aA V0) (aB V0) 282 283 (by decide) rfl).symm
theorem val284_y (V0 : Valuation τ sig (Elt Ideal)) : val284 V0 (Proc.devRef .tc main_v5683) = yJ (aX V0) (aA V0) (aB V0) (aC V0) 284 := by
  refine ((step283_val (val283 V0)).2).trans ?_
  rw [val283_main_arg0 V0, val283_main_v3 V0, val283_main_arg2 V0, val283_main_arg3 V0, val283_h V0, val283_y V0]
  rw [← hI_at (aX V0) (aA V0) (aB V0) 282 283 (by decide) rfl]
  exact (yJ_at (aX V0) (aA V0) (aB V0) (aC V0) 283 284 (by decide) rfl).symm
/-- The contents after step 284. -/
def val285 (V0 : Valuation τ sig (Elt Ideal)) : Valuation τ sig (Elt Ideal) := after (stepOps284 (F := Ideal)) (val284 V0)
theorem val285_main_arg0 (V0 : Valuation τ sig (Elt Ideal)) : val285 V0 (Proc.devRef .tc main_arg0) = aX V0 :=
  (after_keep _ 10 stepOps284_ok main_arg0 (by decide +kernel) (val284 V0)).trans (val284_main_arg0 V0)
theorem val285_main_arg1 (V0 : Valuation τ sig (Elt Ideal)) : val285 V0 (Proc.devRef .tc main_arg1) = aA V0 :=
  (after_keep _ 10 stepOps284_ok main_arg1 (by decide +kernel) (val284 V0)).trans (val284_main_arg1 V0)
theorem val285_main_arg2 (V0 : Valuation τ sig (Elt Ideal)) : val285 V0 (Proc.devRef .tc main_arg2) = aB V0 :=
  (after_keep _ 10 stepOps284_ok main_arg2 (by decide +kernel) (val284 V0)).trans (val284_main_arg2 V0)
theorem val285_main_arg3 (V0 : Valuation τ sig (Elt Ideal)) : val285 V0 (Proc.devRef .tc main_arg3) = aC V0 :=
  (after_keep _ 10 stepOps284_ok main_arg3 (by decide +kernel) (val284 V0)).trans (val284_main_arg3 V0)
theorem val285_main_v3 (V0 : Valuation τ sig (Elt Ideal)) : val285 V0 (Proc.devRef .tc main_v3) = decay (aA V0) :=
  (after_keep _ 10 stepOps284_ok main_v3 (by decide +kernel) (val284 V0)).trans (val284_main_v3 V0)
theorem val285_h (V0 : Valuation τ sig (Elt Ideal)) : val285 V0 (Proc.devRef .tc main_v5695) = hI (aX V0) (aA V0) (aB V0) 284 := by
  refine ((step284_val (val284 V0)).1).trans ?_
  rw [val284_main_arg0 V0, val284_main_v3 V0, val284_main_arg2 V0, val284_h V0]
  exact (hI_at (aX V0) (aA V0) (aB V0) 283 284 (by decide) rfl).symm
theorem val285_y (V0 : Valuation τ sig (Elt Ideal)) : val285 V0 (Proc.devRef .tc main_v5703) = yJ (aX V0) (aA V0) (aB V0) (aC V0) 285 := by
  refine ((step284_val (val284 V0)).2).trans ?_
  rw [val284_main_arg0 V0, val284_main_v3 V0, val284_main_arg2 V0, val284_main_arg3 V0, val284_h V0, val284_y V0]
  rw [← hI_at (aX V0) (aA V0) (aB V0) 283 284 (by decide) rfl]
  exact (yJ_at (aX V0) (aA V0) (aB V0) (aC V0) 284 285 (by decide) rfl).symm
/-- The contents after step 285. -/
def val286 (V0 : Valuation τ sig (Elt Ideal)) : Valuation τ sig (Elt Ideal) := after (stepOps285 (F := Ideal)) (val285 V0)
theorem val286_main_arg0 (V0 : Valuation τ sig (Elt Ideal)) : val286 V0 (Proc.devRef .tc main_arg0) = aX V0 :=
  (after_keep _ 10 stepOps285_ok main_arg0 (by decide +kernel) (val285 V0)).trans (val285_main_arg0 V0)
theorem val286_main_arg1 (V0 : Valuation τ sig (Elt Ideal)) : val286 V0 (Proc.devRef .tc main_arg1) = aA V0 :=
  (after_keep _ 10 stepOps285_ok main_arg1 (by decide +kernel) (val285 V0)).trans (val285_main_arg1 V0)
theorem val286_main_arg2 (V0 : Valuation τ sig (Elt Ideal)) : val286 V0 (Proc.devRef .tc main_arg2) = aB V0 :=
  (after_keep _ 10 stepOps285_ok main_arg2 (by decide +kernel) (val285 V0)).trans (val285_main_arg2 V0)
theorem val286_main_arg3 (V0 : Valuation τ sig (Elt Ideal)) : val286 V0 (Proc.devRef .tc main_arg3) = aC V0 :=
  (after_keep _ 10 stepOps285_ok main_arg3 (by decide +kernel) (val285 V0)).trans (val285_main_arg3 V0)
theorem val286_main_v3 (V0 : Valuation τ sig (Elt Ideal)) : val286 V0 (Proc.devRef .tc main_v3) = decay (aA V0) :=
  (after_keep _ 10 stepOps285_ok main_v3 (by decide +kernel) (val285 V0)).trans (val285_main_v3 V0)
theorem val286_h (V0 : Valuation τ sig (Elt Ideal)) : val286 V0 (Proc.devRef .tc main_v5715) = hI (aX V0) (aA V0) (aB V0) 285 := by
  refine ((step285_val (val285 V0)).1).trans ?_
  rw [val285_main_arg0 V0, val285_main_v3 V0, val285_main_arg2 V0, val285_h V0]
  exact (hI_at (aX V0) (aA V0) (aB V0) 284 285 (by decide) rfl).symm
theorem val286_y (V0 : Valuation τ sig (Elt Ideal)) : val286 V0 (Proc.devRef .tc main_v5723) = yJ (aX V0) (aA V0) (aB V0) (aC V0) 286 := by
  refine ((step285_val (val285 V0)).2).trans ?_
  rw [val285_main_arg0 V0, val285_main_v3 V0, val285_main_arg2 V0, val285_main_arg3 V0, val285_h V0, val285_y V0]
  rw [← hI_at (aX V0) (aA V0) (aB V0) 284 285 (by decide) rfl]
  exact (yJ_at (aX V0) (aA V0) (aB V0) (aC V0) 285 286 (by decide) rfl).symm
/-- The contents after step 286. -/
def val287 (V0 : Valuation τ sig (Elt Ideal)) : Valuation τ sig (Elt Ideal) := after (stepOps286 (F := Ideal)) (val286 V0)
theorem val287_main_arg0 (V0 : Valuation τ sig (Elt Ideal)) : val287 V0 (Proc.devRef .tc main_arg0) = aX V0 :=
  (after_keep _ 10 stepOps286_ok main_arg0 (by decide +kernel) (val286 V0)).trans (val286_main_arg0 V0)
theorem val287_main_arg1 (V0 : Valuation τ sig (Elt Ideal)) : val287 V0 (Proc.devRef .tc main_arg1) = aA V0 :=
  (after_keep _ 10 stepOps286_ok main_arg1 (by decide +kernel) (val286 V0)).trans (val286_main_arg1 V0)
theorem val287_main_arg2 (V0 : Valuation τ sig (Elt Ideal)) : val287 V0 (Proc.devRef .tc main_arg2) = aB V0 :=
  (after_keep _ 10 stepOps286_ok main_arg2 (by decide +kernel) (val286 V0)).trans (val286_main_arg2 V0)
theorem val287_main_arg3 (V0 : Valuation τ sig (Elt Ideal)) : val287 V0 (Proc.devRef .tc main_arg3) = aC V0 :=
  (after_keep _ 10 stepOps286_ok main_arg3 (by decide +kernel) (val286 V0)).trans (val286_main_arg3 V0)
theorem val287_main_v3 (V0 : Valuation τ sig (Elt Ideal)) : val287 V0 (Proc.devRef .tc main_v3) = decay (aA V0) :=
  (after_keep _ 10 stepOps286_ok main_v3 (by decide +kernel) (val286 V0)).trans (val286_main_v3 V0)
theorem val287_h (V0 : Valuation τ sig (Elt Ideal)) : val287 V0 (Proc.devRef .tc main_v5735) = hI (aX V0) (aA V0) (aB V0) 286 := by
  refine ((step286_val (val286 V0)).1).trans ?_
  rw [val286_main_arg0 V0, val286_main_v3 V0, val286_main_arg2 V0, val286_h V0]
  exact (hI_at (aX V0) (aA V0) (aB V0) 285 286 (by decide) rfl).symm
theorem val287_y (V0 : Valuation τ sig (Elt Ideal)) : val287 V0 (Proc.devRef .tc main_v5743) = yJ (aX V0) (aA V0) (aB V0) (aC V0) 287 := by
  refine ((step286_val (val286 V0)).2).trans ?_
  rw [val286_main_arg0 V0, val286_main_v3 V0, val286_main_arg2 V0, val286_main_arg3 V0, val286_h V0, val286_y V0]
  rw [← hI_at (aX V0) (aA V0) (aB V0) 285 286 (by decide) rfl]
  exact (yJ_at (aX V0) (aA V0) (aB V0) (aC V0) 286 287 (by decide) rfl).symm
/-- The contents after step 287. -/
def val288 (V0 : Valuation τ sig (Elt Ideal)) : Valuation τ sig (Elt Ideal) := after (stepOps287 (F := Ideal)) (val287 V0)
theorem val288_main_arg0 (V0 : Valuation τ sig (Elt Ideal)) : val288 V0 (Proc.devRef .tc main_arg0) = aX V0 :=
  (after_keep _ 10 stepOps287_ok main_arg0 (by decide +kernel) (val287 V0)).trans (val287_main_arg0 V0)
theorem val288_main_arg1 (V0 : Valuation τ sig (Elt Ideal)) : val288 V0 (Proc.devRef .tc main_arg1) = aA V0 :=
  (after_keep _ 10 stepOps287_ok main_arg1 (by decide +kernel) (val287 V0)).trans (val287_main_arg1 V0)
theorem val288_main_arg2 (V0 : Valuation τ sig (Elt Ideal)) : val288 V0 (Proc.devRef .tc main_arg2) = aB V0 :=
  (after_keep _ 10 stepOps287_ok main_arg2 (by decide +kernel) (val287 V0)).trans (val287_main_arg2 V0)
theorem val288_main_arg3 (V0 : Valuation τ sig (Elt Ideal)) : val288 V0 (Proc.devRef .tc main_arg3) = aC V0 :=
  (after_keep _ 10 stepOps287_ok main_arg3 (by decide +kernel) (val287 V0)).trans (val287_main_arg3 V0)
theorem val288_main_v3 (V0 : Valuation τ sig (Elt Ideal)) : val288 V0 (Proc.devRef .tc main_v3) = decay (aA V0) :=
  (after_keep _ 10 stepOps287_ok main_v3 (by decide +kernel) (val287 V0)).trans (val287_main_v3 V0)
theorem val288_h (V0 : Valuation τ sig (Elt Ideal)) : val288 V0 (Proc.devRef .tc main_v5755) = hI (aX V0) (aA V0) (aB V0) 287 := by
  refine ((step287_val (val287 V0)).1).trans ?_
  rw [val287_main_arg0 V0, val287_main_v3 V0, val287_main_arg2 V0, val287_h V0]
  exact (hI_at (aX V0) (aA V0) (aB V0) 286 287 (by decide) rfl).symm
theorem val288_y (V0 : Valuation τ sig (Elt Ideal)) : val288 V0 (Proc.devRef .tc main_v5763) = yJ (aX V0) (aA V0) (aB V0) (aC V0) 288 := by
  refine ((step287_val (val287 V0)).2).trans ?_
  rw [val287_main_arg0 V0, val287_main_v3 V0, val287_main_arg2 V0, val287_main_arg3 V0, val287_h V0, val287_y V0]
  rw [← hI_at (aX V0) (aA V0) (aB V0) 286 287 (by decide) rfl]
  exact (yJ_at (aX V0) (aA V0) (aB V0) (aC V0) 287 288 (by decide) rfl).symm
/-- The contents after step 288. -/
def val289 (V0 : Valuation τ sig (Elt Ideal)) : Valuation τ sig (Elt Ideal) := after (stepOps288 (F := Ideal)) (val288 V0)
theorem val289_main_arg0 (V0 : Valuation τ sig (Elt Ideal)) : val289 V0 (Proc.devRef .tc main_arg0) = aX V0 :=
  (after_keep _ 10 stepOps288_ok main_arg0 (by decide +kernel) (val288 V0)).trans (val288_main_arg0 V0)
theorem val289_main_arg1 (V0 : Valuation τ sig (Elt Ideal)) : val289 V0 (Proc.devRef .tc main_arg1) = aA V0 :=
  (after_keep _ 10 stepOps288_ok main_arg1 (by decide +kernel) (val288 V0)).trans (val288_main_arg1 V0)
theorem val289_main_arg2 (V0 : Valuation τ sig (Elt Ideal)) : val289 V0 (Proc.devRef .tc main_arg2) = aB V0 :=
  (after_keep _ 10 stepOps288_ok main_arg2 (by decide +kernel) (val288 V0)).trans (val288_main_arg2 V0)
theorem val289_main_arg3 (V0 : Valuation τ sig (Elt Ideal)) : val289 V0 (Proc.devRef .tc main_arg3) = aC V0 :=
  (after_keep _ 10 stepOps288_ok main_arg3 (by decide +kernel) (val288 V0)).trans (val288_main_arg3 V0)
theorem val289_main_v3 (V0 : Valuation τ sig (Elt Ideal)) : val289 V0 (Proc.devRef .tc main_v3) = decay (aA V0) :=
  (after_keep _ 10 stepOps288_ok main_v3 (by decide +kernel) (val288 V0)).trans (val288_main_v3 V0)
theorem val289_h (V0 : Valuation τ sig (Elt Ideal)) : val289 V0 (Proc.devRef .tc main_v5775) = hI (aX V0) (aA V0) (aB V0) 288 := by
  refine ((step288_val (val288 V0)).1).trans ?_
  rw [val288_main_arg0 V0, val288_main_v3 V0, val288_main_arg2 V0, val288_h V0]
  exact (hI_at (aX V0) (aA V0) (aB V0) 287 288 (by decide) rfl).symm
theorem val289_y (V0 : Valuation τ sig (Elt Ideal)) : val289 V0 (Proc.devRef .tc main_v5783) = yJ (aX V0) (aA V0) (aB V0) (aC V0) 289 := by
  refine ((step288_val (val288 V0)).2).trans ?_
  rw [val288_main_arg0 V0, val288_main_v3 V0, val288_main_arg2 V0, val288_main_arg3 V0, val288_h V0, val288_y V0]
  rw [← hI_at (aX V0) (aA V0) (aB V0) 287 288 (by decide) rfl]
  exact (yJ_at (aX V0) (aA V0) (aB V0) (aC V0) 288 289 (by decide) rfl).symm
/-- The contents after step 289. -/
def val290 (V0 : Valuation τ sig (Elt Ideal)) : Valuation τ sig (Elt Ideal) := after (stepOps289 (F := Ideal)) (val289 V0)
theorem val290_main_arg0 (V0 : Valuation τ sig (Elt Ideal)) : val290 V0 (Proc.devRef .tc main_arg0) = aX V0 :=
  (after_keep _ 10 stepOps289_ok main_arg0 (by decide +kernel) (val289 V0)).trans (val289_main_arg0 V0)
theorem val290_main_arg1 (V0 : Valuation τ sig (Elt Ideal)) : val290 V0 (Proc.devRef .tc main_arg1) = aA V0 :=
  (after_keep _ 10 stepOps289_ok main_arg1 (by decide +kernel) (val289 V0)).trans (val289_main_arg1 V0)
theorem val290_main_arg2 (V0 : Valuation τ sig (Elt Ideal)) : val290 V0 (Proc.devRef .tc main_arg2) = aB V0 :=
  (after_keep _ 10 stepOps289_ok main_arg2 (by decide +kernel) (val289 V0)).trans (val289_main_arg2 V0)
theorem val290_main_arg3 (V0 : Valuation τ sig (Elt Ideal)) : val290 V0 (Proc.devRef .tc main_arg3) = aC V0 :=
  (after_keep _ 10 stepOps289_ok main_arg3 (by decide +kernel) (val289 V0)).trans (val289_main_arg3 V0)
theorem val290_main_v3 (V0 : Valuation τ sig (Elt Ideal)) : val290 V0 (Proc.devRef .tc main_v3) = decay (aA V0) :=
  (after_keep _ 10 stepOps289_ok main_v3 (by decide +kernel) (val289 V0)).trans (val289_main_v3 V0)
theorem val290_h (V0 : Valuation τ sig (Elt Ideal)) : val290 V0 (Proc.devRef .tc main_v5795) = hI (aX V0) (aA V0) (aB V0) 289 := by
  refine ((step289_val (val289 V0)).1).trans ?_
  rw [val289_main_arg0 V0, val289_main_v3 V0, val289_main_arg2 V0, val289_h V0]
  exact (hI_at (aX V0) (aA V0) (aB V0) 288 289 (by decide) rfl).symm
theorem val290_y (V0 : Valuation τ sig (Elt Ideal)) : val290 V0 (Proc.devRef .tc main_v5803) = yJ (aX V0) (aA V0) (aB V0) (aC V0) 290 := by
  refine ((step289_val (val289 V0)).2).trans ?_
  rw [val289_main_arg0 V0, val289_main_v3 V0, val289_main_arg2 V0, val289_main_arg3 V0, val289_h V0, val289_y V0]
  rw [← hI_at (aX V0) (aA V0) (aB V0) 288 289 (by decide) rfl]
  exact (yJ_at (aX V0) (aA V0) (aB V0) (aC V0) 289 290 (by decide) rfl).symm
/-- The contents after step 290. -/
def val291 (V0 : Valuation τ sig (Elt Ideal)) : Valuation τ sig (Elt Ideal) := after (stepOps290 (F := Ideal)) (val290 V0)
theorem val291_main_arg0 (V0 : Valuation τ sig (Elt Ideal)) : val291 V0 (Proc.devRef .tc main_arg0) = aX V0 :=
  (after_keep _ 10 stepOps290_ok main_arg0 (by decide +kernel) (val290 V0)).trans (val290_main_arg0 V0)
theorem val291_main_arg1 (V0 : Valuation τ sig (Elt Ideal)) : val291 V0 (Proc.devRef .tc main_arg1) = aA V0 :=
  (after_keep _ 10 stepOps290_ok main_arg1 (by decide +kernel) (val290 V0)).trans (val290_main_arg1 V0)
theorem val291_main_arg2 (V0 : Valuation τ sig (Elt Ideal)) : val291 V0 (Proc.devRef .tc main_arg2) = aB V0 :=
  (after_keep _ 10 stepOps290_ok main_arg2 (by decide +kernel) (val290 V0)).trans (val290_main_arg2 V0)
theorem val291_main_arg3 (V0 : Valuation τ sig (Elt Ideal)) : val291 V0 (Proc.devRef .tc main_arg3) = aC V0 :=
  (after_keep _ 10 stepOps290_ok main_arg3 (by decide +kernel) (val290 V0)).trans (val290_main_arg3 V0)
theorem val291_main_v3 (V0 : Valuation τ sig (Elt Ideal)) : val291 V0 (Proc.devRef .tc main_v3) = decay (aA V0) :=
  (after_keep _ 10 stepOps290_ok main_v3 (by decide +kernel) (val290 V0)).trans (val290_main_v3 V0)
theorem val291_h (V0 : Valuation τ sig (Elt Ideal)) : val291 V0 (Proc.devRef .tc main_v5815) = hI (aX V0) (aA V0) (aB V0) 290 := by
  refine ((step290_val (val290 V0)).1).trans ?_
  rw [val290_main_arg0 V0, val290_main_v3 V0, val290_main_arg2 V0, val290_h V0]
  exact (hI_at (aX V0) (aA V0) (aB V0) 289 290 (by decide) rfl).symm
theorem val291_y (V0 : Valuation τ sig (Elt Ideal)) : val291 V0 (Proc.devRef .tc main_v5823) = yJ (aX V0) (aA V0) (aB V0) (aC V0) 291 := by
  refine ((step290_val (val290 V0)).2).trans ?_
  rw [val290_main_arg0 V0, val290_main_v3 V0, val290_main_arg2 V0, val290_main_arg3 V0, val290_h V0, val290_y V0]
  rw [← hI_at (aX V0) (aA V0) (aB V0) 289 290 (by decide) rfl]
  exact (yJ_at (aX V0) (aA V0) (aB V0) (aC V0) 290 291 (by decide) rfl).symm
/-- The contents after step 291. -/
def val292 (V0 : Valuation τ sig (Elt Ideal)) : Valuation τ sig (Elt Ideal) := after (stepOps291 (F := Ideal)) (val291 V0)
theorem val292_main_arg0 (V0 : Valuation τ sig (Elt Ideal)) : val292 V0 (Proc.devRef .tc main_arg0) = aX V0 :=
  (after_keep _ 10 stepOps291_ok main_arg0 (by decide +kernel) (val291 V0)).trans (val291_main_arg0 V0)
theorem val292_main_arg1 (V0 : Valuation τ sig (Elt Ideal)) : val292 V0 (Proc.devRef .tc main_arg1) = aA V0 :=
  (after_keep _ 10 stepOps291_ok main_arg1 (by decide +kernel) (val291 V0)).trans (val291_main_arg1 V0)
theorem val292_main_arg2 (V0 : Valuation τ sig (Elt Ideal)) : val292 V0 (Proc.devRef .tc main_arg2) = aB V0 :=
  (after_keep _ 10 stepOps291_ok main_arg2 (by decide +kernel) (val291 V0)).trans (val291_main_arg2 V0)
theorem val292_main_arg3 (V0 : Valuation τ sig (Elt Ideal)) : val292 V0 (Proc.devRef .tc main_arg3) = aC V0 :=
  (after_keep _ 10 stepOps291_ok main_arg3 (by decide +kernel) (val291 V0)).trans (val291_main_arg3 V0)
theorem val292_main_v3 (V0 : Valuation τ sig (Elt Ideal)) : val292 V0 (Proc.devRef .tc main_v3) = decay (aA V0) :=
  (after_keep _ 10 stepOps291_ok main_v3 (by decide +kernel) (val291 V0)).trans (val291_main_v3 V0)
theorem val292_h (V0 : Valuation τ sig (Elt Ideal)) : val292 V0 (Proc.devRef .tc main_v5835) = hI (aX V0) (aA V0) (aB V0) 291 := by
  refine ((step291_val (val291 V0)).1).trans ?_
  rw [val291_main_arg0 V0, val291_main_v3 V0, val291_main_arg2 V0, val291_h V0]
  exact (hI_at (aX V0) (aA V0) (aB V0) 290 291 (by decide) rfl).symm
theorem val292_y (V0 : Valuation τ sig (Elt Ideal)) : val292 V0 (Proc.devRef .tc main_v5843) = yJ (aX V0) (aA V0) (aB V0) (aC V0) 292 := by
  refine ((step291_val (val291 V0)).2).trans ?_
  rw [val291_main_arg0 V0, val291_main_v3 V0, val291_main_arg2 V0, val291_main_arg3 V0, val291_h V0, val291_y V0]
  rw [← hI_at (aX V0) (aA V0) (aB V0) 290 291 (by decide) rfl]
  exact (yJ_at (aX V0) (aA V0) (aB V0) (aC V0) 291 292 (by decide) rfl).symm
/-- The contents after step 292. -/
def val293 (V0 : Valuation τ sig (Elt Ideal)) : Valuation τ sig (Elt Ideal) := after (stepOps292 (F := Ideal)) (val292 V0)
theorem val293_main_arg0 (V0 : Valuation τ sig (Elt Ideal)) : val293 V0 (Proc.devRef .tc main_arg0) = aX V0 :=
  (after_keep _ 10 stepOps292_ok main_arg0 (by decide +kernel) (val292 V0)).trans (val292_main_arg0 V0)
theorem val293_main_arg1 (V0 : Valuation τ sig (Elt Ideal)) : val293 V0 (Proc.devRef .tc main_arg1) = aA V0 :=
  (after_keep _ 10 stepOps292_ok main_arg1 (by decide +kernel) (val292 V0)).trans (val292_main_arg1 V0)
theorem val293_main_arg2 (V0 : Valuation τ sig (Elt Ideal)) : val293 V0 (Proc.devRef .tc main_arg2) = aB V0 :=
  (after_keep _ 10 stepOps292_ok main_arg2 (by decide +kernel) (val292 V0)).trans (val292_main_arg2 V0)
theorem val293_main_arg3 (V0 : Valuation τ sig (Elt Ideal)) : val293 V0 (Proc.devRef .tc main_arg3) = aC V0 :=
  (after_keep _ 10 stepOps292_ok main_arg3 (by decide +kernel) (val292 V0)).trans (val292_main_arg3 V0)
theorem val293_main_v3 (V0 : Valuation τ sig (Elt Ideal)) : val293 V0 (Proc.devRef .tc main_v3) = decay (aA V0) :=
  (after_keep _ 10 stepOps292_ok main_v3 (by decide +kernel) (val292 V0)).trans (val292_main_v3 V0)
theorem val293_h (V0 : Valuation τ sig (Elt Ideal)) : val293 V0 (Proc.devRef .tc main_v5855) = hI (aX V0) (aA V0) (aB V0) 292 := by
  refine ((step292_val (val292 V0)).1).trans ?_
  rw [val292_main_arg0 V0, val292_main_v3 V0, val292_main_arg2 V0, val292_h V0]
  exact (hI_at (aX V0) (aA V0) (aB V0) 291 292 (by decide) rfl).symm
theorem val293_y (V0 : Valuation τ sig (Elt Ideal)) : val293 V0 (Proc.devRef .tc main_v5863) = yJ (aX V0) (aA V0) (aB V0) (aC V0) 293 := by
  refine ((step292_val (val292 V0)).2).trans ?_
  rw [val292_main_arg0 V0, val292_main_v3 V0, val292_main_arg2 V0, val292_main_arg3 V0, val292_h V0, val292_y V0]
  rw [← hI_at (aX V0) (aA V0) (aB V0) 291 292 (by decide) rfl]
  exact (yJ_at (aX V0) (aA V0) (aB V0) (aC V0) 292 293 (by decide) rfl).symm
/-- The contents after step 293. -/
def val294 (V0 : Valuation τ sig (Elt Ideal)) : Valuation τ sig (Elt Ideal) := after (stepOps293 (F := Ideal)) (val293 V0)
theorem val294_main_arg0 (V0 : Valuation τ sig (Elt Ideal)) : val294 V0 (Proc.devRef .tc main_arg0) = aX V0 :=
  (after_keep _ 10 stepOps293_ok main_arg0 (by decide +kernel) (val293 V0)).trans (val293_main_arg0 V0)
theorem val294_main_arg1 (V0 : Valuation τ sig (Elt Ideal)) : val294 V0 (Proc.devRef .tc main_arg1) = aA V0 :=
  (after_keep _ 10 stepOps293_ok main_arg1 (by decide +kernel) (val293 V0)).trans (val293_main_arg1 V0)
theorem val294_main_arg2 (V0 : Valuation τ sig (Elt Ideal)) : val294 V0 (Proc.devRef .tc main_arg2) = aB V0 :=
  (after_keep _ 10 stepOps293_ok main_arg2 (by decide +kernel) (val293 V0)).trans (val293_main_arg2 V0)
theorem val294_main_arg3 (V0 : Valuation τ sig (Elt Ideal)) : val294 V0 (Proc.devRef .tc main_arg3) = aC V0 :=
  (after_keep _ 10 stepOps293_ok main_arg3 (by decide +kernel) (val293 V0)).trans (val293_main_arg3 V0)
theorem val294_main_v3 (V0 : Valuation τ sig (Elt Ideal)) : val294 V0 (Proc.devRef .tc main_v3) = decay (aA V0) :=
  (after_keep _ 10 stepOps293_ok main_v3 (by decide +kernel) (val293 V0)).trans (val293_main_v3 V0)
theorem val294_h (V0 : Valuation τ sig (Elt Ideal)) : val294 V0 (Proc.devRef .tc main_v5875) = hI (aX V0) (aA V0) (aB V0) 293 := by
  refine ((step293_val (val293 V0)).1).trans ?_
  rw [val293_main_arg0 V0, val293_main_v3 V0, val293_main_arg2 V0, val293_h V0]
  exact (hI_at (aX V0) (aA V0) (aB V0) 292 293 (by decide) rfl).symm
theorem val294_y (V0 : Valuation τ sig (Elt Ideal)) : val294 V0 (Proc.devRef .tc main_v5883) = yJ (aX V0) (aA V0) (aB V0) (aC V0) 294 := by
  refine ((step293_val (val293 V0)).2).trans ?_
  rw [val293_main_arg0 V0, val293_main_v3 V0, val293_main_arg2 V0, val293_main_arg3 V0, val293_h V0, val293_y V0]
  rw [← hI_at (aX V0) (aA V0) (aB V0) 292 293 (by decide) rfl]
  exact (yJ_at (aX V0) (aA V0) (aB V0) (aC V0) 293 294 (by decide) rfl).symm
/-- The contents after step 294. -/
def val295 (V0 : Valuation τ sig (Elt Ideal)) : Valuation τ sig (Elt Ideal) := after (stepOps294 (F := Ideal)) (val294 V0)
theorem val295_main_arg0 (V0 : Valuation τ sig (Elt Ideal)) : val295 V0 (Proc.devRef .tc main_arg0) = aX V0 :=
  (after_keep _ 10 stepOps294_ok main_arg0 (by decide +kernel) (val294 V0)).trans (val294_main_arg0 V0)
theorem val295_main_arg1 (V0 : Valuation τ sig (Elt Ideal)) : val295 V0 (Proc.devRef .tc main_arg1) = aA V0 :=
  (after_keep _ 10 stepOps294_ok main_arg1 (by decide +kernel) (val294 V0)).trans (val294_main_arg1 V0)
theorem val295_main_arg2 (V0 : Valuation τ sig (Elt Ideal)) : val295 V0 (Proc.devRef .tc main_arg2) = aB V0 :=
  (after_keep _ 10 stepOps294_ok main_arg2 (by decide +kernel) (val294 V0)).trans (val294_main_arg2 V0)
theorem val295_main_arg3 (V0 : Valuation τ sig (Elt Ideal)) : val295 V0 (Proc.devRef .tc main_arg3) = aC V0 :=
  (after_keep _ 10 stepOps294_ok main_arg3 (by decide +kernel) (val294 V0)).trans (val294_main_arg3 V0)
theorem val295_main_v3 (V0 : Valuation τ sig (Elt Ideal)) : val295 V0 (Proc.devRef .tc main_v3) = decay (aA V0) :=
  (after_keep _ 10 stepOps294_ok main_v3 (by decide +kernel) (val294 V0)).trans (val294_main_v3 V0)
theorem val295_h (V0 : Valuation τ sig (Elt Ideal)) : val295 V0 (Proc.devRef .tc main_v5895) = hI (aX V0) (aA V0) (aB V0) 294 := by
  refine ((step294_val (val294 V0)).1).trans ?_
  rw [val294_main_arg0 V0, val294_main_v3 V0, val294_main_arg2 V0, val294_h V0]
  exact (hI_at (aX V0) (aA V0) (aB V0) 293 294 (by decide) rfl).symm
theorem val295_y (V0 : Valuation τ sig (Elt Ideal)) : val295 V0 (Proc.devRef .tc main_v5903) = yJ (aX V0) (aA V0) (aB V0) (aC V0) 295 := by
  refine ((step294_val (val294 V0)).2).trans ?_
  rw [val294_main_arg0 V0, val294_main_v3 V0, val294_main_arg2 V0, val294_main_arg3 V0, val294_h V0, val294_y V0]
  rw [← hI_at (aX V0) (aA V0) (aB V0) 293 294 (by decide) rfl]
  exact (yJ_at (aX V0) (aA V0) (aB V0) (aC V0) 294 295 (by decide) rfl).symm
/-- The contents after step 295. -/
def val296 (V0 : Valuation τ sig (Elt Ideal)) : Valuation τ sig (Elt Ideal) := after (stepOps295 (F := Ideal)) (val295 V0)
theorem val296_main_arg0 (V0 : Valuation τ sig (Elt Ideal)) : val296 V0 (Proc.devRef .tc main_arg0) = aX V0 :=
  (after_keep _ 10 stepOps295_ok main_arg0 (by decide +kernel) (val295 V0)).trans (val295_main_arg0 V0)
theorem val296_main_arg1 (V0 : Valuation τ sig (Elt Ideal)) : val296 V0 (Proc.devRef .tc main_arg1) = aA V0 :=
  (after_keep _ 10 stepOps295_ok main_arg1 (by decide +kernel) (val295 V0)).trans (val295_main_arg1 V0)
theorem val296_main_arg2 (V0 : Valuation τ sig (Elt Ideal)) : val296 V0 (Proc.devRef .tc main_arg2) = aB V0 :=
  (after_keep _ 10 stepOps295_ok main_arg2 (by decide +kernel) (val295 V0)).trans (val295_main_arg2 V0)
theorem val296_main_arg3 (V0 : Valuation τ sig (Elt Ideal)) : val296 V0 (Proc.devRef .tc main_arg3) = aC V0 :=
  (after_keep _ 10 stepOps295_ok main_arg3 (by decide +kernel) (val295 V0)).trans (val295_main_arg3 V0)
theorem val296_main_v3 (V0 : Valuation τ sig (Elt Ideal)) : val296 V0 (Proc.devRef .tc main_v3) = decay (aA V0) :=
  (after_keep _ 10 stepOps295_ok main_v3 (by decide +kernel) (val295 V0)).trans (val295_main_v3 V0)
theorem val296_h (V0 : Valuation τ sig (Elt Ideal)) : val296 V0 (Proc.devRef .tc main_v5915) = hI (aX V0) (aA V0) (aB V0) 295 := by
  refine ((step295_val (val295 V0)).1).trans ?_
  rw [val295_main_arg0 V0, val295_main_v3 V0, val295_main_arg2 V0, val295_h V0]
  exact (hI_at (aX V0) (aA V0) (aB V0) 294 295 (by decide) rfl).symm
theorem val296_y (V0 : Valuation τ sig (Elt Ideal)) : val296 V0 (Proc.devRef .tc main_v5923) = yJ (aX V0) (aA V0) (aB V0) (aC V0) 296 := by
  refine ((step295_val (val295 V0)).2).trans ?_
  rw [val295_main_arg0 V0, val295_main_v3 V0, val295_main_arg2 V0, val295_main_arg3 V0, val295_h V0, val295_y V0]
  rw [← hI_at (aX V0) (aA V0) (aB V0) 294 295 (by decide) rfl]
  exact (yJ_at (aX V0) (aA V0) (aB V0) (aC V0) 295 296 (by decide) rfl).symm
/-- The contents after step 296. -/
def val297 (V0 : Valuation τ sig (Elt Ideal)) : Valuation τ sig (Elt Ideal) := after (stepOps296 (F := Ideal)) (val296 V0)
theorem val297_main_arg0 (V0 : Valuation τ sig (Elt Ideal)) : val297 V0 (Proc.devRef .tc main_arg0) = aX V0 :=
  (after_keep _ 10 stepOps296_ok main_arg0 (by decide +kernel) (val296 V0)).trans (val296_main_arg0 V0)
theorem val297_main_arg1 (V0 : Valuation τ sig (Elt Ideal)) : val297 V0 (Proc.devRef .tc main_arg1) = aA V0 :=
  (after_keep _ 10 stepOps296_ok main_arg1 (by decide +kernel) (val296 V0)).trans (val296_main_arg1 V0)
theorem val297_main_arg2 (V0 : Valuation τ sig (Elt Ideal)) : val297 V0 (Proc.devRef .tc main_arg2) = aB V0 :=
  (after_keep _ 10 stepOps296_ok main_arg2 (by decide +kernel) (val296 V0)).trans (val296_main_arg2 V0)
theorem val297_main_arg3 (V0 : Valuation τ sig (Elt Ideal)) : val297 V0 (Proc.devRef .tc main_arg3) = aC V0 :=
  (after_keep _ 10 stepOps296_ok main_arg3 (by decide +kernel) (val296 V0)).trans (val296_main_arg3 V0)
theorem val297_main_v3 (V0 : Valuation τ sig (Elt Ideal)) : val297 V0 (Proc.devRef .tc main_v3) = decay (aA V0) :=
  (after_keep _ 10 stepOps296_ok main_v3 (by decide +kernel) (val296 V0)).trans (val296_main_v3 V0)
theorem val297_h (V0 : Valuation τ sig (Elt Ideal)) : val297 V0 (Proc.devRef .tc main_v5935) = hI (aX V0) (aA V0) (aB V0) 296 := by
  refine ((step296_val (val296 V0)).1).trans ?_
  rw [val296_main_arg0 V0, val296_main_v3 V0, val296_main_arg2 V0, val296_h V0]
  exact (hI_at (aX V0) (aA V0) (aB V0) 295 296 (by decide) rfl).symm
theorem val297_y (V0 : Valuation τ sig (Elt Ideal)) : val297 V0 (Proc.devRef .tc main_v5943) = yJ (aX V0) (aA V0) (aB V0) (aC V0) 297 := by
  refine ((step296_val (val296 V0)).2).trans ?_
  rw [val296_main_arg0 V0, val296_main_v3 V0, val296_main_arg2 V0, val296_main_arg3 V0, val296_h V0, val296_y V0]
  rw [← hI_at (aX V0) (aA V0) (aB V0) 295 296 (by decide) rfl]
  exact (yJ_at (aX V0) (aA V0) (aB V0) (aC V0) 296 297 (by decide) rfl).symm
/-- The contents after step 297. -/
def val298 (V0 : Valuation τ sig (Elt Ideal)) : Valuation τ sig (Elt Ideal) := after (stepOps297 (F := Ideal)) (val297 V0)
theorem val298_main_arg0 (V0 : Valuation τ sig (Elt Ideal)) : val298 V0 (Proc.devRef .tc main_arg0) = aX V0 :=
  (after_keep _ 10 stepOps297_ok main_arg0 (by decide +kernel) (val297 V0)).trans (val297_main_arg0 V0)
theorem val298_main_arg1 (V0 : Valuation τ sig (Elt Ideal)) : val298 V0 (Proc.devRef .tc main_arg1) = aA V0 :=
  (after_keep _ 10 stepOps297_ok main_arg1 (by decide +kernel) (val297 V0)).trans (val297_main_arg1 V0)
theorem val298_main_arg2 (V0 : Valuation τ sig (Elt Ideal)) : val298 V0 (Proc.devRef .tc main_arg2) = aB V0 :=
  (after_keep _ 10 stepOps297_ok main_arg2 (by decide +kernel) (val297 V0)).trans (val297_main_arg2 V0)
theorem val298_main_arg3 (V0 : Valuation τ sig (Elt Ideal)) : val298 V0 (Proc.devRef .tc main_arg3) = aC V0 :=
  (after_keep _ 10 stepOps297_ok main_arg3 (by decide +kernel) (val297 V0)).trans (val297_main_arg3 V0)
theorem val298_main_v3 (V0 : Valuation τ sig (Elt Ideal)) : val298 V0 (Proc.devRef .tc main_v3) = decay (aA V0) :=
  (after_keep _ 10 stepOps297_ok main_v3 (by decide +kernel) (val297 V0)).trans (val297_main_v3 V0)
theorem val298_h (V0 : Valuation τ sig (Elt Ideal)) : val298 V0 (Proc.devRef .tc main_v5955) = hI (aX V0) (aA V0) (aB V0) 297 := by
  refine ((step297_val (val297 V0)).1).trans ?_
  rw [val297_main_arg0 V0, val297_main_v3 V0, val297_main_arg2 V0, val297_h V0]
  exact (hI_at (aX V0) (aA V0) (aB V0) 296 297 (by decide) rfl).symm
theorem val298_y (V0 : Valuation τ sig (Elt Ideal)) : val298 V0 (Proc.devRef .tc main_v5963) = yJ (aX V0) (aA V0) (aB V0) (aC V0) 298 := by
  refine ((step297_val (val297 V0)).2).trans ?_
  rw [val297_main_arg0 V0, val297_main_v3 V0, val297_main_arg2 V0, val297_main_arg3 V0, val297_h V0, val297_y V0]
  rw [← hI_at (aX V0) (aA V0) (aB V0) 296 297 (by decide) rfl]
  exact (yJ_at (aX V0) (aA V0) (aB V0) (aC V0) 297 298 (by decide) rfl).symm
/-- The contents after step 298. -/
def val299 (V0 : Valuation τ sig (Elt Ideal)) : Valuation τ sig (Elt Ideal) := after (stepOps298 (F := Ideal)) (val298 V0)
theorem val299_main_arg0 (V0 : Valuation τ sig (Elt Ideal)) : val299 V0 (Proc.devRef .tc main_arg0) = aX V0 :=
  (after_keep _ 10 stepOps298_ok main_arg0 (by decide +kernel) (val298 V0)).trans (val298_main_arg0 V0)
theorem val299_main_arg1 (V0 : Valuation τ sig (Elt Ideal)) : val299 V0 (Proc.devRef .tc main_arg1) = aA V0 :=
  (after_keep _ 10 stepOps298_ok main_arg1 (by decide +kernel) (val298 V0)).trans (val298_main_arg1 V0)
theorem val299_main_arg2 (V0 : Valuation τ sig (Elt Ideal)) : val299 V0 (Proc.devRef .tc main_arg2) = aB V0 :=
  (after_keep _ 10 stepOps298_ok main_arg2 (by decide +kernel) (val298 V0)).trans (val298_main_arg2 V0)
theorem val299_main_arg3 (V0 : Valuation τ sig (Elt Ideal)) : val299 V0 (Proc.devRef .tc main_arg3) = aC V0 :=
  (after_keep _ 10 stepOps298_ok main_arg3 (by decide +kernel) (val298 V0)).trans (val298_main_arg3 V0)
theorem val299_main_v3 (V0 : Valuation τ sig (Elt Ideal)) : val299 V0 (Proc.devRef .tc main_v3) = decay (aA V0) :=
  (after_keep _ 10 stepOps298_ok main_v3 (by decide +kernel) (val298 V0)).trans (val298_main_v3 V0)
theorem val299_h (V0 : Valuation τ sig (Elt Ideal)) : val299 V0 (Proc.devRef .tc main_v5975) = hI (aX V0) (aA V0) (aB V0) 298 := by
  refine ((step298_val (val298 V0)).1).trans ?_
  rw [val298_main_arg0 V0, val298_main_v3 V0, val298_main_arg2 V0, val298_h V0]
  exact (hI_at (aX V0) (aA V0) (aB V0) 297 298 (by decide) rfl).symm
theorem val299_y (V0 : Valuation τ sig (Elt Ideal)) : val299 V0 (Proc.devRef .tc main_v5983) = yJ (aX V0) (aA V0) (aB V0) (aC V0) 299 := by
  refine ((step298_val (val298 V0)).2).trans ?_
  rw [val298_main_arg0 V0, val298_main_v3 V0, val298_main_arg2 V0, val298_main_arg3 V0, val298_h V0, val298_y V0]
  rw [← hI_at (aX V0) (aA V0) (aB V0) 297 298 (by decide) rfl]
  exact (yJ_at (aX V0) (aA V0) (aB V0) (aC V0) 298 299 (by decide) rfl).symm
/-- The contents after step 299. -/
def val300 (V0 : Valuation τ sig (Elt Ideal)) : Valuation τ sig (Elt Ideal) := after (stepOps299 (F := Ideal)) (val299 V0)
theorem val300_main_arg0 (V0 : Valuation τ sig (Elt Ideal)) : val300 V0 (Proc.devRef .tc main_arg0) = aX V0 :=
  (after_keep _ 10 stepOps299_ok main_arg0 (by decide +kernel) (val299 V0)).trans (val299_main_arg0 V0)
theorem val300_main_arg1 (V0 : Valuation τ sig (Elt Ideal)) : val300 V0 (Proc.devRef .tc main_arg1) = aA V0 :=
  (after_keep _ 10 stepOps299_ok main_arg1 (by decide +kernel) (val299 V0)).trans (val299_main_arg1 V0)
theorem val300_main_arg2 (V0 : Valuation τ sig (Elt Ideal)) : val300 V0 (Proc.devRef .tc main_arg2) = aB V0 :=
  (after_keep _ 10 stepOps299_ok main_arg2 (by decide +kernel) (val299 V0)).trans (val299_main_arg2 V0)
theorem val300_main_arg3 (V0 : Valuation τ sig (Elt Ideal)) : val300 V0 (Proc.devRef .tc main_arg3) = aC V0 :=
  (after_keep _ 10 stepOps299_ok main_arg3 (by decide +kernel) (val299 V0)).trans (val299_main_arg3 V0)
theorem val300_main_v3 (V0 : Valuation τ sig (Elt Ideal)) : val300 V0 (Proc.devRef .tc main_v3) = decay (aA V0) :=
  (after_keep _ 10 stepOps299_ok main_v3 (by decide +kernel) (val299 V0)).trans (val299_main_v3 V0)
theorem val300_h (V0 : Valuation τ sig (Elt Ideal)) : val300 V0 (Proc.devRef .tc main_v5995) = hI (aX V0) (aA V0) (aB V0) 299 := by
  refine ((step299_val (val299 V0)).1).trans ?_
  rw [val299_main_arg0 V0, val299_main_v3 V0, val299_main_arg2 V0, val299_h V0]
  exact (hI_at (aX V0) (aA V0) (aB V0) 298 299 (by decide) rfl).symm
theorem val300_y (V0 : Valuation τ sig (Elt Ideal)) : val300 V0 (Proc.devRef .tc main_v6003) = yJ (aX V0) (aA V0) (aB V0) (aC V0) 300 := by
  refine ((step299_val (val299 V0)).2).trans ?_
  rw [val299_main_arg0 V0, val299_main_v3 V0, val299_main_arg2 V0, val299_main_arg3 V0, val299_h V0, val299_y V0]
  rw [← hI_at (aX V0) (aA V0) (aB V0) 298 299 (by decide) rfl]
  exact (yJ_at (aX V0) (aA V0) (aB V0) (aC V0) 299 300 (by decide) rfl).symm
/-- The contents after step 300. -/
def val301 (V0 : Valuation τ sig (Elt Ideal)) : Valuation τ sig (Elt Ideal) := after (stepOps300 (F := Ideal)) (val300 V0)
theorem val301_main_arg0 (V0 : Valuation τ sig (Elt Ideal)) : val301 V0 (Proc.devRef .tc main_arg0) = aX V0 :=
  (after_keep _ 10 stepOps300_ok main_arg0 (by decide +kernel) (val300 V0)).trans (val300_main_arg0 V0)
theorem val301_main_arg1 (V0 : Valuation τ sig (Elt Ideal)) : val301 V0 (Proc.devRef .tc main_arg1) = aA V0 :=
  (after_keep _ 10 stepOps300_ok main_arg1 (by decide +kernel) (val300 V0)).trans (val300_main_arg1 V0)
theorem val301_main_arg2 (V0 : Valuation τ sig (Elt Ideal)) : val301 V0 (Proc.devRef .tc main_arg2) = aB V0 :=
  (after_keep _ 10 stepOps300_ok main_arg2 (by decide +kernel) (val300 V0)).trans (val300_main_arg2 V0)
theorem val301_main_arg3 (V0 : Valuation τ sig (Elt Ideal)) : val301 V0 (Proc.devRef .tc main_arg3) = aC V0 :=
  (after_keep _ 10 stepOps300_ok main_arg3 (by decide +kernel) (val300 V0)).trans (val300_main_arg3 V0)
theorem val301_main_v3 (V0 : Valuation τ sig (Elt Ideal)) : val301 V0 (Proc.devRef .tc main_v3) = decay (aA V0) :=
  (after_keep _ 10 stepOps300_ok main_v3 (by decide +kernel) (val300 V0)).trans (val300_main_v3 V0)
theorem val301_h (V0 : Valuation τ sig (Elt Ideal)) : val301 V0 (Proc.devRef .tc main_v6015) = hI (aX V0) (aA V0) (aB V0) 300 := by
  refine ((step300_val (val300 V0)).1).trans ?_
  rw [val300_main_arg0 V0, val300_main_v3 V0, val300_main_arg2 V0, val300_h V0]
  exact (hI_at (aX V0) (aA V0) (aB V0) 299 300 (by decide) rfl).symm
theorem val301_y (V0 : Valuation τ sig (Elt Ideal)) : val301 V0 (Proc.devRef .tc main_v6023) = yJ (aX V0) (aA V0) (aB V0) (aC V0) 301 := by
  refine ((step300_val (val300 V0)).2).trans ?_
  rw [val300_main_arg0 V0, val300_main_v3 V0, val300_main_arg2 V0, val300_main_arg3 V0, val300_h V0, val300_y V0]
  rw [← hI_at (aX V0) (aA V0) (aB V0) 299 300 (by decide) rfl]
  exact (yJ_at (aX V0) (aA V0) (aB V0) (aC V0) 300 301 (by decide) rfl).symm
/-- The contents after step 301. -/
def val302 (V0 : Valuation τ sig (Elt Ideal)) : Valuation τ sig (Elt Ideal) := after (stepOps301 (F := Ideal)) (val301 V0)
theorem val302_main_arg0 (V0 : Valuation τ sig (Elt Ideal)) : val302 V0 (Proc.devRef .tc main_arg0) = aX V0 :=
  (after_keep _ 10 stepOps301_ok main_arg0 (by decide +kernel) (val301 V0)).trans (val301_main_arg0 V0)
theorem val302_main_arg1 (V0 : Valuation τ sig (Elt Ideal)) : val302 V0 (Proc.devRef .tc main_arg1) = aA V0 :=
  (after_keep _ 10 stepOps301_ok main_arg1 (by decide +kernel) (val301 V0)).trans (val301_main_arg1 V0)
theorem val302_main_arg2 (V0 : Valuation τ sig (Elt Ideal)) : val302 V0 (Proc.devRef .tc main_arg2) = aB V0 :=
  (after_keep _ 10 stepOps301_ok main_arg2 (by decide +kernel) (val301 V0)).trans (val301_main_arg2 V0)
theorem val302_main_arg3 (V0 : Valuation τ sig (Elt Ideal)) : val302 V0 (Proc.devRef .tc main_arg3) = aC V0 :=
  (after_keep _ 10 stepOps301_ok main_arg3 (by decide +kernel) (val301 V0)).trans (val301_main_arg3 V0)
theorem val302_main_v3 (V0 : Valuation τ sig (Elt Ideal)) : val302 V0 (Proc.devRef .tc main_v3) = decay (aA V0) :=
  (after_keep _ 10 stepOps301_ok main_v3 (by decide +kernel) (val301 V0)).trans (val301_main_v3 V0)
theorem val302_h (V0 : Valuation τ sig (Elt Ideal)) : val302 V0 (Proc.devRef .tc main_v6035) = hI (aX V0) (aA V0) (aB V0) 301 := by
  refine ((step301_val (val301 V0)).1).trans ?_
  rw [val301_main_arg0 V0, val301_main_v3 V0, val301_main_arg2 V0, val301_h V0]
  exact (hI_at (aX V0) (aA V0) (aB V0) 300 301 (by decide) rfl).symm
theorem val302_y (V0 : Valuation τ sig (Elt Ideal)) : val302 V0 (Proc.devRef .tc main_v6043) = yJ (aX V0) (aA V0) (aB V0) (aC V0) 302 := by
  refine ((step301_val (val301 V0)).2).trans ?_
  rw [val301_main_arg0 V0, val301_main_v3 V0, val301_main_arg2 V0, val301_main_arg3 V0, val301_h V0, val301_y V0]
  rw [← hI_at (aX V0) (aA V0) (aB V0) 300 301 (by decide) rfl]
  exact (yJ_at (aX V0) (aA V0) (aB V0) (aC V0) 301 302 (by decide) rfl).symm
/-- The contents after step 302. -/
def val303 (V0 : Valuation τ sig (Elt Ideal)) : Valuation τ sig (Elt Ideal) := after (stepOps302 (F := Ideal)) (val302 V0)
theorem val303_main_arg0 (V0 : Valuation τ sig (Elt Ideal)) : val303 V0 (Proc.devRef .tc main_arg0) = aX V0 :=
  (after_keep _ 10 stepOps302_ok main_arg0 (by decide +kernel) (val302 V0)).trans (val302_main_arg0 V0)
theorem val303_main_arg1 (V0 : Valuation τ sig (Elt Ideal)) : val303 V0 (Proc.devRef .tc main_arg1) = aA V0 :=
  (after_keep _ 10 stepOps302_ok main_arg1 (by decide +kernel) (val302 V0)).trans (val302_main_arg1 V0)
theorem val303_main_arg2 (V0 : Valuation τ sig (Elt Ideal)) : val303 V0 (Proc.devRef .tc main_arg2) = aB V0 :=
  (after_keep _ 10 stepOps302_ok main_arg2 (by decide +kernel) (val302 V0)).trans (val302_main_arg2 V0)
theorem val303_main_arg3 (V0 : Valuation τ sig (Elt Ideal)) : val303 V0 (Proc.devRef .tc main_arg3) = aC V0 :=
  (after_keep _ 10 stepOps302_ok main_arg3 (by decide +kernel) (val302 V0)).trans (val302_main_arg3 V0)
theorem val303_main_v3 (V0 : Valuation τ sig (Elt Ideal)) : val303 V0 (Proc.devRef .tc main_v3) = decay (aA V0) :=
  (after_keep _ 10 stepOps302_ok main_v3 (by decide +kernel) (val302 V0)).trans (val302_main_v3 V0)
theorem val303_h (V0 : Valuation τ sig (Elt Ideal)) : val303 V0 (Proc.devRef .tc main_v6055) = hI (aX V0) (aA V0) (aB V0) 302 := by
  refine ((step302_val (val302 V0)).1).trans ?_
  rw [val302_main_arg0 V0, val302_main_v3 V0, val302_main_arg2 V0, val302_h V0]
  exact (hI_at (aX V0) (aA V0) (aB V0) 301 302 (by decide) rfl).symm
theorem val303_y (V0 : Valuation τ sig (Elt Ideal)) : val303 V0 (Proc.devRef .tc main_v6063) = yJ (aX V0) (aA V0) (aB V0) (aC V0) 303 := by
  refine ((step302_val (val302 V0)).2).trans ?_
  rw [val302_main_arg0 V0, val302_main_v3 V0, val302_main_arg2 V0, val302_main_arg3 V0, val302_h V0, val302_y V0]
  rw [← hI_at (aX V0) (aA V0) (aB V0) 301 302 (by decide) rfl]
  exact (yJ_at (aX V0) (aA V0) (aB V0) (aC V0) 302 303 (by decide) rfl).symm
/-- The contents after step 303. -/
def val304 (V0 : Valuation τ sig (Elt Ideal)) : Valuation τ sig (Elt Ideal) := after (stepOps303 (F := Ideal)) (val303 V0)
theorem val304_main_arg0 (V0 : Valuation τ sig (Elt Ideal)) : val304 V0 (Proc.devRef .tc main_arg0) = aX V0 :=
  (after_keep _ 10 stepOps303_ok main_arg0 (by decide +kernel) (val303 V0)).trans (val303_main_arg0 V0)
theorem val304_main_arg1 (V0 : Valuation τ sig (Elt Ideal)) : val304 V0 (Proc.devRef .tc main_arg1) = aA V0 :=
  (after_keep _ 10 stepOps303_ok main_arg1 (by decide +kernel) (val303 V0)).trans (val303_main_arg1 V0)
theorem val304_main_arg2 (V0 : Valuation τ sig (Elt Ideal)) : val304 V0 (Proc.devRef .tc main_arg2) = aB V0 :=
  (after_keep _ 10 stepOps303_ok main_arg2 (by decide +kernel) (val303 V0)).trans (val303_main_arg2 V0)
theorem val304_main_arg3 (V0 : Valuation τ sig (Elt Ideal)) : val304 V0 (Proc.devRef .tc main_arg3) = aC V0 :=
  (after_keep _ 10 stepOps303_ok main_arg3 (by decide +kernel) (val303 V0)).trans (val303_main_arg3 V0)
theorem val304_main_v3 (V0 : Valuation τ sig (Elt Ideal)) : val304 V0 (Proc.devRef .tc main_v3) = decay (aA V0) :=
  (after_keep _ 10 stepOps303_ok main_v3 (by decide +kernel) (val303 V0)).trans (val303_main_v3 V0)
theorem val304_h (V0 : Valuation τ sig (Elt Ideal)) : val304 V0 (Proc.devRef .tc main_v6075) = hI (aX V0) (aA V0) (aB V0) 303 := by
  refine ((step303_val (val303 V0)).1).trans ?_
  rw [val303_main_arg0 V0, val303_main_v3 V0, val303_main_arg2 V0, val303_h V0]
  exact (hI_at (aX V0) (aA V0) (aB V0) 302 303 (by decide) rfl).symm
theorem val304_y (V0 : Valuation τ sig (Elt Ideal)) : val304 V0 (Proc.devRef .tc main_v6083) = yJ (aX V0) (aA V0) (aB V0) (aC V0) 304 := by
  refine ((step303_val (val303 V0)).2).trans ?_
  rw [val303_main_arg0 V0, val303_main_v3 V0, val303_main_arg2 V0, val303_main_arg3 V0, val303_h V0, val303_y V0]
  rw [← hI_at (aX V0) (aA V0) (aB V0) 302 303 (by decide) rfl]
  exact (yJ_at (aX V0) (aA V0) (aB V0) (aC V0) 303 304 (by decide) rfl).symm
/-- The contents after step 304. -/
def val305 (V0 : Valuation τ sig (Elt Ideal)) : Valuation τ sig (Elt Ideal) := after (stepOps304 (F := Ideal)) (val304 V0)
theorem val305_main_arg0 (V0 : Valuation τ sig (Elt Ideal)) : val305 V0 (Proc.devRef .tc main_arg0) = aX V0 :=
  (after_keep _ 10 stepOps304_ok main_arg0 (by decide +kernel) (val304 V0)).trans (val304_main_arg0 V0)
theorem val305_main_arg1 (V0 : Valuation τ sig (Elt Ideal)) : val305 V0 (Proc.devRef .tc main_arg1) = aA V0 :=
  (after_keep _ 10 stepOps304_ok main_arg1 (by decide +kernel) (val304 V0)).trans (val304_main_arg1 V0)
theorem val305_main_arg2 (V0 : Valuation τ sig (Elt Ideal)) : val305 V0 (Proc.devRef .tc main_arg2) = aB V0 :=
  (after_keep _ 10 stepOps304_ok main_arg2 (by decide +kernel) (val304 V0)).trans (val304_main_arg2 V0)
theorem val305_main_arg3 (V0 : Valuation τ sig (Elt Ideal)) : val305 V0 (Proc.devRef .tc main_arg3) = aC V0 :=
  (after_keep _ 10 stepOps304_ok main_arg3 (by decide +kernel) (val304 V0)).trans (val304_main_arg3 V0)
theorem val305_main_v3 (V0 : Valuation τ sig (Elt Ideal)) : val305 V0 (Proc.devRef .tc main_v3) = decay (aA V0) :=
  (after_keep _ 10 stepOps304_ok main_v3 (by decide +kernel) (val304 V0)).trans (val304_main_v3 V0)
theorem val305_h (V0 : Valuation τ sig (Elt Ideal)) : val305 V0 (Proc.devRef .tc main_v6095) = hI (aX V0) (aA V0) (aB V0) 304 := by
  refine ((step304_val (val304 V0)).1).trans ?_
  rw [val304_main_arg0 V0, val304_main_v3 V0, val304_main_arg2 V0, val304_h V0]
  exact (hI_at (aX V0) (aA V0) (aB V0) 303 304 (by decide) rfl).symm
theorem val305_y (V0 : Valuation τ sig (Elt Ideal)) : val305 V0 (Proc.devRef .tc main_v6103) = yJ (aX V0) (aA V0) (aB V0) (aC V0) 305 := by
  refine ((step304_val (val304 V0)).2).trans ?_
  rw [val304_main_arg0 V0, val304_main_v3 V0, val304_main_arg2 V0, val304_main_arg3 V0, val304_h V0, val304_y V0]
  rw [← hI_at (aX V0) (aA V0) (aB V0) 303 304 (by decide) rfl]
  exact (yJ_at (aX V0) (aA V0) (aB V0) (aC V0) 304 305 (by decide) rfl).symm
/-- The contents after step 305. -/
def val306 (V0 : Valuation τ sig (Elt Ideal)) : Valuation τ sig (Elt Ideal) := after (stepOps305 (F := Ideal)) (val305 V0)
theorem val306_main_arg0 (V0 : Valuation τ sig (Elt Ideal)) : val306 V0 (Proc.devRef .tc main_arg0) = aX V0 :=
  (after_keep _ 10 stepOps305_ok main_arg0 (by decide +kernel) (val305 V0)).trans (val305_main_arg0 V0)
theorem val306_main_arg1 (V0 : Valuation τ sig (Elt Ideal)) : val306 V0 (Proc.devRef .tc main_arg1) = aA V0 :=
  (after_keep _ 10 stepOps305_ok main_arg1 (by decide +kernel) (val305 V0)).trans (val305_main_arg1 V0)
theorem val306_main_arg2 (V0 : Valuation τ sig (Elt Ideal)) : val306 V0 (Proc.devRef .tc main_arg2) = aB V0 :=
  (after_keep _ 10 stepOps305_ok main_arg2 (by decide +kernel) (val305 V0)).trans (val305_main_arg2 V0)
theorem val306_main_arg3 (V0 : Valuation τ sig (Elt Ideal)) : val306 V0 (Proc.devRef .tc main_arg3) = aC V0 :=
  (after_keep _ 10 stepOps305_ok main_arg3 (by decide +kernel) (val305 V0)).trans (val305_main_arg3 V0)
theorem val306_main_v3 (V0 : Valuation τ sig (Elt Ideal)) : val306 V0 (Proc.devRef .tc main_v3) = decay (aA V0) :=
  (after_keep _ 10 stepOps305_ok main_v3 (by decide +kernel) (val305 V0)).trans (val305_main_v3 V0)
theorem val306_h (V0 : Valuation τ sig (Elt Ideal)) : val306 V0 (Proc.devRef .tc main_v6115) = hI (aX V0) (aA V0) (aB V0) 305 := by
  refine ((step305_val (val305 V0)).1).trans ?_
  rw [val305_main_arg0 V0, val305_main_v3 V0, val305_main_arg2 V0, val305_h V0]
  exact (hI_at (aX V0) (aA V0) (aB V0) 304 305 (by decide) rfl).symm
theorem val306_y (V0 : Valuation τ sig (Elt Ideal)) : val306 V0 (Proc.devRef .tc main_v6123) = yJ (aX V0) (aA V0) (aB V0) (aC V0) 306 := by
  refine ((step305_val (val305 V0)).2).trans ?_
  rw [val305_main_arg0 V0, val305_main_v3 V0, val305_main_arg2 V0, val305_main_arg3 V0, val305_h V0, val305_y V0]
  rw [← hI_at (aX V0) (aA V0) (aB V0) 304 305 (by decide) rfl]
  exact (yJ_at (aX V0) (aA V0) (aB V0) (aC V0) 305 306 (by decide) rfl).symm
/-- The contents after step 306. -/
def val307 (V0 : Valuation τ sig (Elt Ideal)) : Valuation τ sig (Elt Ideal) := after (stepOps306 (F := Ideal)) (val306 V0)
theorem val307_main_arg0 (V0 : Valuation τ sig (Elt Ideal)) : val307 V0 (Proc.devRef .tc main_arg0) = aX V0 :=
  (after_keep _ 10 stepOps306_ok main_arg0 (by decide +kernel) (val306 V0)).trans (val306_main_arg0 V0)
theorem val307_main_arg1 (V0 : Valuation τ sig (Elt Ideal)) : val307 V0 (Proc.devRef .tc main_arg1) = aA V0 :=
  (after_keep _ 10 stepOps306_ok main_arg1 (by decide +kernel) (val306 V0)).trans (val306_main_arg1 V0)
theorem val307_main_arg2 (V0 : Valuation τ sig (Elt Ideal)) : val307 V0 (Proc.devRef .tc main_arg2) = aB V0 :=
  (after_keep _ 10 stepOps306_ok main_arg2 (by decide +kernel) (val306 V0)).trans (val306_main_arg2 V0)
theorem val307_main_arg3 (V0 : Valuation τ sig (Elt Ideal)) : val307 V0 (Proc.devRef .tc main_arg3) = aC V0 :=
  (after_keep _ 10 stepOps306_ok main_arg3 (by decide +kernel) (val306 V0)).trans (val306_main_arg3 V0)
theorem val307_main_v3 (V0 : Valuation τ sig (Elt Ideal)) : val307 V0 (Proc.devRef .tc main_v3) = decay (aA V0) :=
  (after_keep _ 10 stepOps306_ok main_v3 (by decide +kernel) (val306 V0)).trans (val306_main_v3 V0)
theorem val307_h (V0 : Valuation τ sig (Elt Ideal)) : val307 V0 (Proc.devRef .tc main_v6135) = hI (aX V0) (aA V0) (aB V0) 306 := by
  refine ((step306_val (val306 V0)).1).trans ?_
  rw [val306_main_arg0 V0, val306_main_v3 V0, val306_main_arg2 V0, val306_h V0]
  exact (hI_at (aX V0) (aA V0) (aB V0) 305 306 (by decide) rfl).symm
theorem val307_y (V0 : Valuation τ sig (Elt Ideal)) : val307 V0 (Proc.devRef .tc main_v6143) = yJ (aX V0) (aA V0) (aB V0) (aC V0) 307 := by
  refine ((step306_val (val306 V0)).2).trans ?_
  rw [val306_main_arg0 V0, val306_main_v3 V0, val306_main_arg2 V0, val306_main_arg3 V0, val306_h V0, val306_y V0]
  rw [← hI_at (aX V0) (aA V0) (aB V0) 305 306 (by decide) rfl]
  exact (yJ_at (aX V0) (aA V0) (aB V0) (aC V0) 306 307 (by decide) rfl).symm
/-- The contents after step 307. -/
def val308 (V0 : Valuation τ sig (Elt Ideal)) : Valuation τ sig (Elt Ideal) := after (stepOps307 (F := Ideal)) (val307 V0)
theorem val308_main_arg0 (V0 : Valuation τ sig (Elt Ideal)) : val308 V0 (Proc.devRef .tc main_arg0) = aX V0 :=
  (after_keep _ 10 stepOps307_ok main_arg0 (by decide +kernel) (val307 V0)).trans (val307_main_arg0 V0)
theorem val308_main_arg1 (V0 : Valuation τ sig (Elt Ideal)) : val308 V0 (Proc.devRef .tc main_arg1) = aA V0 :=
  (after_keep _ 10 stepOps307_ok main_arg1 (by decide +kernel) (val307 V0)).trans (val307_main_arg1 V0)
theorem val308_main_arg2 (V0 : Valuation τ sig (Elt Ideal)) : val308 V0 (Proc.devRef .tc main_arg2) = aB V0 :=
  (after_keep _ 10 stepOps307_ok main_arg2 (by decide +kernel) (val307 V0)).trans (val307_main_arg2 V0)
theorem val308_main_arg3 (V0 : Valuation τ sig (Elt Ideal)) : val308 V0 (Proc.devRef .tc main_arg3) = aC V0 :=
  (after_keep _ 10 stepOps307_ok main_arg3 (by decide +kernel) (val307 V0)).trans (val307_main_arg3 V0)
theorem val308_main_v3 (V0 : Valuation τ sig (Elt Ideal)) : val308 V0 (Proc.devRef .tc main_v3) = decay (aA V0) :=
  (after_keep _ 10 stepOps307_ok main_v3 (by decide +kernel) (val307 V0)).trans (val307_main_v3 V0)
theorem val308_h (V0 : Valuation τ sig (Elt Ideal)) : val308 V0 (Proc.devRef .tc main_v6155) = hI (aX V0) (aA V0) (aB V0) 307 := by
  refine ((step307_val (val307 V0)).1).trans ?_
  rw [val307_main_arg0 V0, val307_main_v3 V0, val307_main_arg2 V0, val307_h V0]
  exact (hI_at (aX V0) (aA V0) (aB V0) 306 307 (by decide) rfl).symm
theorem val308_y (V0 : Valuation τ sig (Elt Ideal)) : val308 V0 (Proc.devRef .tc main_v6163) = yJ (aX V0) (aA V0) (aB V0) (aC V0) 308 := by
  refine ((step307_val (val307 V0)).2).trans ?_
  rw [val307_main_arg0 V0, val307_main_v3 V0, val307_main_arg2 V0, val307_main_arg3 V0, val307_h V0, val307_y V0]
  rw [← hI_at (aX V0) (aA V0) (aB V0) 306 307 (by decide) rfl]
  exact (yJ_at (aX V0) (aA V0) (aB V0) (aC V0) 307 308 (by decide) rfl).symm
/-- The contents after step 308. -/
def val309 (V0 : Valuation τ sig (Elt Ideal)) : Valuation τ sig (Elt Ideal) := after (stepOps308 (F := Ideal)) (val308 V0)
theorem val309_main_arg0 (V0 : Valuation τ sig (Elt Ideal)) : val309 V0 (Proc.devRef .tc main_arg0) = aX V0 :=
  (after_keep _ 10 stepOps308_ok main_arg0 (by decide +kernel) (val308 V0)).trans (val308_main_arg0 V0)
theorem val309_main_arg1 (V0 : Valuation τ sig (Elt Ideal)) : val309 V0 (Proc.devRef .tc main_arg1) = aA V0 :=
  (after_keep _ 10 stepOps308_ok main_arg1 (by decide +kernel) (val308 V0)).trans (val308_main_arg1 V0)
theorem val309_main_arg2 (V0 : Valuation τ sig (Elt Ideal)) : val309 V0 (Proc.devRef .tc main_arg2) = aB V0 :=
  (after_keep _ 10 stepOps308_ok main_arg2 (by decide +kernel) (val308 V0)).trans (val308_main_arg2 V0)
theorem val309_main_arg3 (V0 : Valuation τ sig (Elt Ideal)) : val309 V0 (Proc.devRef .tc main_arg3) = aC V0 :=
  (after_keep _ 10 stepOps308_ok main_arg3 (by decide +kernel) (val308 V0)).trans (val308_main_arg3 V0)
theorem val309_main_v3 (V0 : Valuation τ sig (Elt Ideal)) : val309 V0 (Proc.devRef .tc main_v3) = decay (aA V0) :=
  (after_keep _ 10 stepOps308_ok main_v3 (by decide +kernel) (val308 V0)).trans (val308_main_v3 V0)
theorem val309_h (V0 : Valuation τ sig (Elt Ideal)) : val309 V0 (Proc.devRef .tc main_v6175) = hI (aX V0) (aA V0) (aB V0) 308 := by
  refine ((step308_val (val308 V0)).1).trans ?_
  rw [val308_main_arg0 V0, val308_main_v3 V0, val308_main_arg2 V0, val308_h V0]
  exact (hI_at (aX V0) (aA V0) (aB V0) 307 308 (by decide) rfl).symm
theorem val309_y (V0 : Valuation τ sig (Elt Ideal)) : val309 V0 (Proc.devRef .tc main_v6183) = yJ (aX V0) (aA V0) (aB V0) (aC V0) 309 := by
  refine ((step308_val (val308 V0)).2).trans ?_
  rw [val308_main_arg0 V0, val308_main_v3 V0, val308_main_arg2 V0, val308_main_arg3 V0, val308_h V0, val308_y V0]
  rw [← hI_at (aX V0) (aA V0) (aB V0) 307 308 (by decide) rfl]
  exact (yJ_at (aX V0) (aA V0) (aB V0) (aC V0) 308 309 (by decide) rfl).symm
/-- The contents after step 309. -/
def val310 (V0 : Valuation τ sig (Elt Ideal)) : Valuation τ sig (Elt Ideal) := after (stepOps309 (F := Ideal)) (val309 V0)
theorem val310_main_arg0 (V0 : Valuation τ sig (Elt Ideal)) : val310 V0 (Proc.devRef .tc main_arg0) = aX V0 :=
  (after_keep _ 10 stepOps309_ok main_arg0 (by decide +kernel) (val309 V0)).trans (val309_main_arg0 V0)
theorem val310_main_arg1 (V0 : Valuation τ sig (Elt Ideal)) : val310 V0 (Proc.devRef .tc main_arg1) = aA V0 :=
  (after_keep _ 10 stepOps309_ok main_arg1 (by decide +kernel) (val309 V0)).trans (val309_main_arg1 V0)
theorem val310_main_arg2 (V0 : Valuation τ sig (Elt Ideal)) : val310 V0 (Proc.devRef .tc main_arg2) = aB V0 :=
  (after_keep _ 10 stepOps309_ok main_arg2 (by decide +kernel) (val309 V0)).trans (val309_main_arg2 V0)
theorem val310_main_arg3 (V0 : Valuation τ sig (Elt Ideal)) : val310 V0 (Proc.devRef .tc main_arg3) = aC V0 :=
  (after_keep _ 10 stepOps309_ok main_arg3 (by decide +kernel) (val309 V0)).trans (val309_main_arg3 V0)
theorem val310_main_v3 (V0 : Valuation τ sig (Elt Ideal)) : val310 V0 (Proc.devRef .tc main_v3) = decay (aA V0) :=
  (after_keep _ 10 stepOps309_ok main_v3 (by decide +kernel) (val309 V0)).trans (val309_main_v3 V0)
theorem val310_h (V0 : Valuation τ sig (Elt Ideal)) : val310 V0 (Proc.devRef .tc main_v6195) = hI (aX V0) (aA V0) (aB V0) 309 := by
  refine ((step309_val (val309 V0)).1).trans ?_
  rw [val309_main_arg0 V0, val309_main_v3 V0, val309_main_arg2 V0, val309_h V0]
  exact (hI_at (aX V0) (aA V0) (aB V0) 308 309 (by decide) rfl).symm
theorem val310_y (V0 : Valuation τ sig (Elt Ideal)) : val310 V0 (Proc.devRef .tc main_v6203) = yJ (aX V0) (aA V0) (aB V0) (aC V0) 310 := by
  refine ((step309_val (val309 V0)).2).trans ?_
  rw [val309_main_arg0 V0, val309_main_v3 V0, val309_main_arg2 V0, val309_main_arg3 V0, val309_h V0, val309_y V0]
  rw [← hI_at (aX V0) (aA V0) (aB V0) 308 309 (by decide) rfl]
  exact (yJ_at (aX V0) (aA V0) (aB V0) (aC V0) 309 310 (by decide) rfl).symm
/-- The contents after step 310. -/
def val311 (V0 : Valuation τ sig (Elt Ideal)) : Valuation τ sig (Elt Ideal) := after (stepOps310 (F := Ideal)) (val310 V0)
theorem val311_main_arg0 (V0 : Valuation τ sig (Elt Ideal)) : val311 V0 (Proc.devRef .tc main_arg0) = aX V0 :=
  (after_keep _ 10 stepOps310_ok main_arg0 (by decide +kernel) (val310 V0)).trans (val310_main_arg0 V0)
theorem val311_main_arg1 (V0 : Valuation τ sig (Elt Ideal)) : val311 V0 (Proc.devRef .tc main_arg1) = aA V0 :=
  (after_keep _ 10 stepOps310_ok main_arg1 (by decide +kernel) (val310 V0)).trans (val310_main_arg1 V0)
theorem val311_main_arg2 (V0 : Valuation τ sig (Elt Ideal)) : val311 V0 (Proc.devRef .tc main_arg2) = aB V0 :=
  (after_keep _ 10 stepOps310_ok main_arg2 (by decide +kernel) (val310 V0)).trans (val310_main_arg2 V0)
theorem val311_main_arg3 (V0 : Valuation τ sig (Elt Ideal)) : val311 V0 (Proc.devRef .tc main_arg3) = aC V0 :=
  (after_keep _ 10 stepOps310_ok main_arg3 (by decide +kernel) (val310 V0)).trans (val310_main_arg3 V0)
theorem val311_main_v3 (V0 : Valuation τ sig (Elt Ideal)) : val311 V0 (Proc.devRef .tc main_v3) = decay (aA V0) :=
  (after_keep _ 10 stepOps310_ok main_v3 (by decide +kernel) (val310 V0)).trans (val310_main_v3 V0)
theorem val311_h (V0 : Valuation τ sig (Elt Ideal)) : val311 V0 (Proc.devRef .tc main_v6215) = hI (aX V0) (aA V0) (aB V0) 310 := by
  refine ((step310_val (val310 V0)).1).trans ?_
  rw [val310_main_arg0 V0, val310_main_v3 V0, val310_main_arg2 V0, val310_h V0]
  exact (hI_at (aX V0) (aA V0) (aB V0) 309 310 (by decide) rfl).symm
theorem val311_y (V0 : Valuation τ sig (Elt Ideal)) : val311 V0 (Proc.devRef .tc main_v6223) = yJ (aX V0) (aA V0) (aB V0) (aC V0) 311 := by
  refine ((step310_val (val310 V0)).2).trans ?_
  rw [val310_main_arg0 V0, val310_main_v3 V0, val310_main_arg2 V0, val310_main_arg3 V0, val310_h V0, val310_y V0]
  rw [← hI_at (aX V0) (aA V0) (aB V0) 309 310 (by decide) rfl]
  exact (yJ_at (aX V0) (aA V0) (aB V0) (aC V0) 310 311 (by decide) rfl).symm
/-- The contents after step 311. -/
def val312 (V0 : Valuation τ sig (Elt Ideal)) : Valuation τ sig (Elt Ideal) := after (stepOps311 (F := Ideal)) (val311 V0)
theorem val312_main_arg0 (V0 : Valuation τ sig (Elt Ideal)) : val312 V0 (Proc.devRef .tc main_arg0) = aX V0 :=
  (after_keep _ 10 stepOps311_ok main_arg0 (by decide +kernel) (val311 V0)).trans (val311_main_arg0 V0)
theorem val312_main_arg1 (V0 : Valuation τ sig (Elt Ideal)) : val312 V0 (Proc.devRef .tc main_arg1) = aA V0 :=
  (after_keep _ 10 stepOps311_ok main_arg1 (by decide +kernel) (val311 V0)).trans (val311_main_arg1 V0)
theorem val312_main_arg2 (V0 : Valuation τ sig (Elt Ideal)) : val312 V0 (Proc.devRef .tc main_arg2) = aB V0 :=
  (after_keep _ 10 stepOps311_ok main_arg2 (by decide +kernel) (val311 V0)).trans (val311_main_arg2 V0)
theorem val312_main_arg3 (V0 : Valuation τ sig (Elt Ideal)) : val312 V0 (Proc.devRef .tc main_arg3) = aC V0 :=
  (after_keep _ 10 stepOps311_ok main_arg3 (by decide +kernel) (val311 V0)).trans (val311_main_arg3 V0)
theorem val312_main_v3 (V0 : Valuation τ sig (Elt Ideal)) : val312 V0 (Proc.devRef .tc main_v3) = decay (aA V0) :=
  (after_keep _ 10 stepOps311_ok main_v3 (by decide +kernel) (val311 V0)).trans (val311_main_v3 V0)
theorem val312_h (V0 : Valuation τ sig (Elt Ideal)) : val312 V0 (Proc.devRef .tc main_v6235) = hI (aX V0) (aA V0) (aB V0) 311 := by
  refine ((step311_val (val311 V0)).1).trans ?_
  rw [val311_main_arg0 V0, val311_main_v3 V0, val311_main_arg2 V0, val311_h V0]
  exact (hI_at (aX V0) (aA V0) (aB V0) 310 311 (by decide) rfl).symm
theorem val312_y (V0 : Valuation τ sig (Elt Ideal)) : val312 V0 (Proc.devRef .tc main_v6243) = yJ (aX V0) (aA V0) (aB V0) (aC V0) 312 := by
  refine ((step311_val (val311 V0)).2).trans ?_
  rw [val311_main_arg0 V0, val311_main_v3 V0, val311_main_arg2 V0, val311_main_arg3 V0, val311_h V0, val311_y V0]
  rw [← hI_at (aX V0) (aA V0) (aB V0) 310 311 (by decide) rfl]
  exact (yJ_at (aX V0) (aA V0) (aB V0) (aC V0) 311 312 (by decide) rfl).symm
/-- The contents after step 312. -/
def val313 (V0 : Valuation τ sig (Elt Ideal)) : Valuation τ sig (Elt Ideal) := after (stepOps312 (F := Ideal)) (val312 V0)
theorem val313_main_arg0 (V0 : Valuation τ sig (Elt Ideal)) : val313 V0 (Proc.devRef .tc main_arg0) = aX V0 :=
  (after_keep _ 10 stepOps312_ok main_arg0 (by decide +kernel) (val312 V0)).trans (val312_main_arg0 V0)
theorem val313_main_arg1 (V0 : Valuation τ sig (Elt Ideal)) : val313 V0 (Proc.devRef .tc main_arg1) = aA V0 :=
  (after_keep _ 10 stepOps312_ok main_arg1 (by decide +kernel) (val312 V0)).trans (val312_main_arg1 V0)
theorem val313_main_arg2 (V0 : Valuation τ sig (Elt Ideal)) : val313 V0 (Proc.devRef .tc main_arg2) = aB V0 :=
  (after_keep _ 10 stepOps312_ok main_arg2 (by decide +kernel) (val312 V0)).trans (val312_main_arg2 V0)
theorem val313_main_arg3 (V0 : Valuation τ sig (Elt Ideal)) : val313 V0 (Proc.devRef .tc main_arg3) = aC V0 :=
  (after_keep _ 10 stepOps312_ok main_arg3 (by decide +kernel) (val312 V0)).trans (val312_main_arg3 V0)
theorem val313_main_v3 (V0 : Valuation τ sig (Elt Ideal)) : val313 V0 (Proc.devRef .tc main_v3) = decay (aA V0) :=
  (after_keep _ 10 stepOps312_ok main_v3 (by decide +kernel) (val312 V0)).trans (val312_main_v3 V0)
theorem val313_h (V0 : Valuation τ sig (Elt Ideal)) : val313 V0 (Proc.devRef .tc main_v6255) = hI (aX V0) (aA V0) (aB V0) 312 := by
  refine ((step312_val (val312 V0)).1).trans ?_
  rw [val312_main_arg0 V0, val312_main_v3 V0, val312_main_arg2 V0, val312_h V0]
  exact (hI_at (aX V0) (aA V0) (aB V0) 311 312 (by decide) rfl).symm
theorem val313_y (V0 : Valuation τ sig (Elt Ideal)) : val313 V0 (Proc.devRef .tc main_v6263) = yJ (aX V0) (aA V0) (aB V0) (aC V0) 313 := by
  refine ((step312_val (val312 V0)).2).trans ?_
  rw [val312_main_arg0 V0, val312_main_v3 V0, val312_main_arg2 V0, val312_main_arg3 V0, val312_h V0, val312_y V0]
  rw [← hI_at (aX V0) (aA V0) (aB V0) 311 312 (by decide) rfl]
  exact (yJ_at (aX V0) (aA V0) (aB V0) (aC V0) 312 313 (by decide) rfl).symm
/-- The contents after step 313. -/
def val314 (V0 : Valuation τ sig (Elt Ideal)) : Valuation τ sig (Elt Ideal) := after (stepOps313 (F := Ideal)) (val313 V0)
theorem val314_main_arg0 (V0 : Valuation τ sig (Elt Ideal)) : val314 V0 (Proc.devRef .tc main_arg0) = aX V0 :=
  (after_keep _ 10 stepOps313_ok main_arg0 (by decide +kernel) (val313 V0)).trans (val313_main_arg0 V0)
theorem val314_main_arg1 (V0 : Valuation τ sig (Elt Ideal)) : val314 V0 (Proc.devRef .tc main_arg1) = aA V0 :=
  (after_keep _ 10 stepOps313_ok main_arg1 (by decide +kernel) (val313 V0)).trans (val313_main_arg1 V0)
theorem val314_main_arg2 (V0 : Valuation τ sig (Elt Ideal)) : val314 V0 (Proc.devRef .tc main_arg2) = aB V0 :=
  (after_keep _ 10 stepOps313_ok main_arg2 (by decide +kernel) (val313 V0)).trans (val313_main_arg2 V0)
theorem val314_main_arg3 (V0 : Valuation τ sig (Elt Ideal)) : val314 V0 (Proc.devRef .tc main_arg3) = aC V0 :=
  (after_keep _ 10 stepOps313_ok main_arg3 (by decide +kernel) (val313 V0)).trans (val313_main_arg3 V0)
theorem val314_main_v3 (V0 : Valuation τ sig (Elt Ideal)) : val314 V0 (Proc.devRef .tc main_v3) = decay (aA V0) :=
  (after_keep _ 10 stepOps313_ok main_v3 (by decide +kernel) (val313 V0)).trans (val313_main_v3 V0)
theorem val314_h (V0 : Valuation τ sig (Elt Ideal)) : val314 V0 (Proc.devRef .tc main_v6275) = hI (aX V0) (aA V0) (aB V0) 313 := by
  refine ((step313_val (val313 V0)).1).trans ?_
  rw [val313_main_arg0 V0, val313_main_v3 V0, val313_main_arg2 V0, val313_h V0]
  exact (hI_at (aX V0) (aA V0) (aB V0) 312 313 (by decide) rfl).symm
theorem val314_y (V0 : Valuation τ sig (Elt Ideal)) : val314 V0 (Proc.devRef .tc main_v6283) = yJ (aX V0) (aA V0) (aB V0) (aC V0) 314 := by
  refine ((step313_val (val313 V0)).2).trans ?_
  rw [val313_main_arg0 V0, val313_main_v3 V0, val313_main_arg2 V0, val313_main_arg3 V0, val313_h V0, val313_y V0]
  rw [← hI_at (aX V0) (aA V0) (aB V0) 312 313 (by decide) rfl]
  exact (yJ_at (aX V0) (aA V0) (aB V0) (aC V0) 313 314 (by decide) rfl).symm
/-- The contents after step 314. -/
def val315 (V0 : Valuation τ sig (Elt Ideal)) : Valuation τ sig (Elt Ideal) := after (stepOps314 (F := Ideal)) (val314 V0)
theorem val315_main_arg0 (V0 : Valuation τ sig (Elt Ideal)) : val315 V0 (Proc.devRef .tc main_arg0) = aX V0 :=
  (after_keep _ 10 stepOps314_ok main_arg0 (by decide +kernel) (val314 V0)).trans (val314_main_arg0 V0)
theorem val315_main_arg1 (V0 : Valuation τ sig (Elt Ideal)) : val315 V0 (Proc.devRef .tc main_arg1) = aA V0 :=
  (after_keep _ 10 stepOps314_ok main_arg1 (by decide +kernel) (val314 V0)).trans (val314_main_arg1 V0)
theorem val315_main_arg2 (V0 : Valuation τ sig (Elt Ideal)) : val315 V0 (Proc.devRef .tc main_arg2) = aB V0 :=
  (after_keep _ 10 stepOps314_ok main_arg2 (by decide +kernel) (val314 V0)).trans (val314_main_arg2 V0)
theorem val315_main_arg3 (V0 : Valuation τ sig (Elt Ideal)) : val315 V0 (Proc.devRef .tc main_arg3) = aC V0 :=
  (after_keep _ 10 stepOps314_ok main_arg3 (by decide +kernel) (val314 V0)).trans (val314_main_arg3 V0)
theorem val315_main_v3 (V0 : Valuation τ sig (Elt Ideal)) : val315 V0 (Proc.devRef .tc main_v3) = decay (aA V0) :=
  (after_keep _ 10 stepOps314_ok main_v3 (by decide +kernel) (val314 V0)).trans (val314_main_v3 V0)
theorem val315_h (V0 : Valuation τ sig (Elt Ideal)) : val315 V0 (Proc.devRef .tc main_v6295) = hI (aX V0) (aA V0) (aB V0) 314 := by
  refine ((step314_val (val314 V0)).1).trans ?_
  rw [val314_main_arg0 V0, val314_main_v3 V0, val314_main_arg2 V0, val314_h V0]
  exact (hI_at (aX V0) (aA V0) (aB V0) 313 314 (by decide) rfl).symm
theorem val315_y (V0 : Valuation τ sig (Elt Ideal)) : val315 V0 (Proc.devRef .tc main_v6303) = yJ (aX V0) (aA V0) (aB V0) (aC V0) 315 := by
  refine ((step314_val (val314 V0)).2).trans ?_
  rw [val314_main_arg0 V0, val314_main_v3 V0, val314_main_arg2 V0, val314_main_arg3 V0, val314_h V0, val314_y V0]
  rw [← hI_at (aX V0) (aA V0) (aB V0) 313 314 (by decide) rfl]
  exact (yJ_at (aX V0) (aA V0) (aB V0) (aC V0) 314 315 (by decide) rfl).symm
/-- The contents after step 315. -/
def val316 (V0 : Valuation τ sig (Elt Ideal)) : Valuation τ sig (Elt Ideal) := after (stepOps315 (F := Ideal)) (val315 V0)
theorem val316_main_arg0 (V0 : Valuation τ sig (Elt Ideal)) : val316 V0 (Proc.devRef .tc main_arg0) = aX V0 :=
  (after_keep _ 10 stepOps315_ok main_arg0 (by decide +kernel) (val315 V0)).trans (val315_main_arg0 V0)
theorem val316_main_arg1 (V0 : Valuation τ sig (Elt Ideal)) : val316 V0 (Proc.devRef .tc main_arg1) = aA V0 :=
  (after_keep _ 10 stepOps315_ok main_arg1 (by decide +kernel) (val315 V0)).trans (val315_main_arg1 V0)
theorem val316_main_arg2 (V0 : Valuation τ sig (Elt Ideal)) : val316 V0 (Proc.devRef .tc main_arg2) = aB V0 :=
  (after_keep _ 10 stepOps315_ok main_arg2 (by decide +kernel) (val315 V0)).trans (val315_main_arg2 V0)
theorem val316_main_arg3 (V0 : Valuation τ sig (Elt Ideal)) : val316 V0 (Proc.devRef .tc main_arg3) = aC V0 :=
  (after_keep _ 10 stepOps315_ok main_arg3 (by decide +kernel) (val315 V0)).trans (val315_main_arg3 V0)
theorem val316_main_v3 (V0 : Valuation τ sig (Elt Ideal)) : val316 V0 (Proc.devRef .tc main_v3) = decay (aA V0) :=
  (after_keep _ 10 stepOps315_ok main_v3 (by decide +kernel) (val315 V0)).trans (val315_main_v3 V0)
theorem val316_h (V0 : Valuation τ sig (Elt Ideal)) : val316 V0 (Proc.devRef .tc main_v6315) = hI (aX V0) (aA V0) (aB V0) 315 := by
  refine ((step315_val (val315 V0)).1).trans ?_
  rw [val315_main_arg0 V0, val315_main_v3 V0, val315_main_arg2 V0, val315_h V0]
  exact (hI_at (aX V0) (aA V0) (aB V0) 314 315 (by decide) rfl).symm
theorem val316_y (V0 : Valuation τ sig (Elt Ideal)) : val316 V0 (Proc.devRef .tc main_v6323) = yJ (aX V0) (aA V0) (aB V0) (aC V0) 316 := by
  refine ((step315_val (val315 V0)).2).trans ?_
  rw [val315_main_arg0 V0, val315_main_v3 V0, val315_main_arg2 V0, val315_main_arg3 V0, val315_h V0, val315_y V0]
  rw [← hI_at (aX V0) (aA V0) (aB V0) 314 315 (by decide) rfl]
  exact (yJ_at (aX V0) (aA V0) (aB V0) (aC V0) 315 316 (by decide) rfl).symm
/-- The contents after step 316. -/
def val317 (V0 : Valuation τ sig (Elt Ideal)) : Valuation τ sig (Elt Ideal) := after (stepOps316 (F := Ideal)) (val316 V0)
theorem val317_main_arg0 (V0 : Valuation τ sig (Elt Ideal)) : val317 V0 (Proc.devRef .tc main_arg0) = aX V0 :=
  (after_keep _ 10 stepOps316_ok main_arg0 (by decide +kernel) (val316 V0)).trans (val316_main_arg0 V0)
theorem val317_main_arg1 (V0 : Valuation τ sig (Elt Ideal)) : val317 V0 (Proc.devRef .tc main_arg1) = aA V0 :=
  (after_keep _ 10 stepOps316_ok main_arg1 (by decide +kernel) (val316 V0)).trans (val316_main_arg1 V0)
theorem val317_main_arg2 (V0 : Valuation τ sig (Elt Ideal)) : val317 V0 (Proc.devRef .tc main_arg2) = aB V0 :=
  (after_keep _ 10 stepOps316_ok main_arg2 (by decide +kernel) (val316 V0)).trans (val316_main_arg2 V0)
theorem val317_main_arg3 (V0 : Valuation τ sig (Elt Ideal)) : val317 V0 (Proc.devRef .tc main_arg3) = aC V0 :=
  (after_keep _ 10 stepOps316_ok main_arg3 (by decide +kernel) (val316 V0)).trans (val316_main_arg3 V0)
theorem val317_main_v3 (V0 : Valuation τ sig (Elt Ideal)) : val317 V0 (Proc.devRef .tc main_v3) = decay (aA V0) :=
  (after_keep _ 10 stepOps316_ok main_v3 (by decide +kernel) (val316 V0)).trans (val316_main_v3 V0)
theorem val317_h (V0 : Valuation τ sig (Elt Ideal)) : val317 V0 (Proc.devRef .tc main_v6335) = hI (aX V0) (aA V0) (aB V0) 316 := by
  refine ((step316_val (val316 V0)).1).trans ?_
  rw [val316_main_arg0 V0, val316_main_v3 V0, val316_main_arg2 V0, val316_h V0]
  exact (hI_at (aX V0) (aA V0) (aB V0) 315 316 (by decide) rfl).symm
theorem val317_y (V0 : Valuation τ sig (Elt Ideal)) : val317 V0 (Proc.devRef .tc main_v6343) = yJ (aX V0) (aA V0) (aB V0) (aC V0) 317 := by
  refine ((step316_val (val316 V0)).2).trans ?_
  rw [val316_main_arg0 V0, val316_main_v3 V0, val316_main_arg2 V0, val316_main_arg3 V0, val316_h V0, val316_y V0]
  rw [← hI_at (aX V0) (aA V0) (aB V0) 315 316 (by decide) rfl]
  exact (yJ_at (aX V0) (aA V0) (aB V0) (aC V0) 316 317 (by decide) rfl).symm
/-- The contents after step 317. -/
def val318 (V0 : Valuation τ sig (Elt Ideal)) : Valuation τ sig (Elt Ideal) := after (stepOps317 (F := Ideal)) (val317 V0)
theorem val318_main_arg0 (V0 : Valuation τ sig (Elt Ideal)) : val318 V0 (Proc.devRef .tc main_arg0) = aX V0 :=
  (after_keep _ 10 stepOps317_ok main_arg0 (by decide +kernel) (val317 V0)).trans (val317_main_arg0 V0)
theorem val318_main_arg1 (V0 : Valuation τ sig (Elt Ideal)) : val318 V0 (Proc.devRef .tc main_arg1) = aA V0 :=
  (after_keep _ 10 stepOps317_ok main_arg1 (by decide +kernel) (val317 V0)).trans (val317_main_arg1 V0)
theorem val318_main_arg2 (V0 : Valuation τ sig (Elt Ideal)) : val318 V0 (Proc.devRef .tc main_arg2) = aB V0 :=
  (after_keep _ 10 stepOps317_ok main_arg2 (by decide +kernel) (val317 V0)).trans (val317_main_arg2 V0)
theorem val318_main_arg3 (V0 : Valuation τ sig (Elt Ideal)) : val318 V0 (Proc.devRef .tc main_arg3) = aC V0 :=
  (after_keep _ 10 stepOps317_ok main_arg3 (by decide +kernel) (val317 V0)).trans (val317_main_arg3 V0)
theorem val318_main_v3 (V0 : Valuation τ sig (Elt Ideal)) : val318 V0 (Proc.devRef .tc main_v3) = decay (aA V0) :=
  (after_keep _ 10 stepOps317_ok main_v3 (by decide +kernel) (val317 V0)).trans (val317_main_v3 V0)
theorem val318_h (V0 : Valuation τ sig (Elt Ideal)) : val318 V0 (Proc.devRef .tc main_v6355) = hI (aX V0) (aA V0) (aB V0) 317 := by
  refine ((step317_val (val317 V0)).1).trans ?_
  rw [val317_main_arg0 V0, val317_main_v3 V0, val317_main_arg2 V0, val317_h V0]
  exact (hI_at (aX V0) (aA V0) (aB V0) 316 317 (by decide) rfl).symm
theorem val318_y (V0 : Valuation τ sig (Elt Ideal)) : val318 V0 (Proc.devRef .tc main_v6363) = yJ (aX V0) (aA V0) (aB V0) (aC V0) 318 := by
  refine ((step317_val (val317 V0)).2).trans ?_
  rw [val317_main_arg0 V0, val317_main_v3 V0, val317_main_arg2 V0, val317_main_arg3 V0, val317_h V0, val317_y V0]
  rw [← hI_at (aX V0) (aA V0) (aB V0) 316 317 (by decide) rfl]
  exact (yJ_at (aX V0) (aA V0) (aB V0) (aC V0) 317 318 (by decide) rfl).symm
/-- The contents after step 318. -/
def val319 (V0 : Valuation τ sig (Elt Ideal)) : Valuation τ sig (Elt Ideal) := after (stepOps318 (F := Ideal)) (val318 V0)
theorem val319_main_arg0 (V0 : Valuation τ sig (Elt Ideal)) : val319 V0 (Proc.devRef .tc main_arg0) = aX V0 :=
  (after_keep _ 10 stepOps318_ok main_arg0 (by decide +kernel) (val318 V0)).trans (val318_main_arg0 V0)
theorem val319_main_arg1 (V0 : Valuation τ sig (Elt Ideal)) : val319 V0 (Proc.devRef .tc main_arg1) = aA V0 :=
  (after_keep _ 10 stepOps318_ok main_arg1 (by decide +kernel) (val318 V0)).trans (val318_main_arg1 V0)
theorem val319_main_arg2 (V0 : Valuation τ sig (Elt Ideal)) : val319 V0 (Proc.devRef .tc main_arg2) = aB V0 :=
  (after_keep _ 10 stepOps318_ok main_arg2 (by decide +kernel) (val318 V0)).trans (val318_main_arg2 V0)
theorem val319_main_arg3 (V0 : Valuation τ sig (Elt Ideal)) : val319 V0 (Proc.devRef .tc main_arg3) = aC V0 :=
  (after_keep _ 10 stepOps318_ok main_arg3 (by decide +kernel) (val318 V0)).trans (val318_main_arg3 V0)
theorem val319_main_v3 (V0 : Valuation τ sig (Elt Ideal)) : val319 V0 (Proc.devRef .tc main_v3) = decay (aA V0) :=
  (after_keep _ 10 stepOps318_ok main_v3 (by decide +kernel) (val318 V0)).trans (val318_main_v3 V0)
theorem val319_h (V0 : Valuation τ sig (Elt Ideal)) : val319 V0 (Proc.devRef .tc main_v6375) = hI (aX V0) (aA V0) (aB V0) 318 := by
  refine ((step318_val (val318 V0)).1).trans ?_
  rw [val318_main_arg0 V0, val318_main_v3 V0, val318_main_arg2 V0, val318_h V0]
  exact (hI_at (aX V0) (aA V0) (aB V0) 317 318 (by decide) rfl).symm
theorem val319_y (V0 : Valuation τ sig (Elt Ideal)) : val319 V0 (Proc.devRef .tc main_v6383) = yJ (aX V0) (aA V0) (aB V0) (aC V0) 319 := by
  refine ((step318_val (val318 V0)).2).trans ?_
  rw [val318_main_arg0 V0, val318_main_v3 V0, val318_main_arg2 V0, val318_main_arg3 V0, val318_h V0, val318_y V0]
  rw [← hI_at (aX V0) (aA V0) (aB V0) 317 318 (by decide) rfl]
  exact (yJ_at (aX V0) (aA V0) (aB V0) (aC V0) 318 319 (by decide) rfl).symm
/-- The contents after step 319. -/
def val320 (V0 : Valuation τ sig (Elt Ideal)) : Valuation τ sig (Elt Ideal) := after (stepOps319 (F := Ideal)) (val319 V0)
theorem val320_main_arg0 (V0 : Valuation τ sig (Elt Ideal)) : val320 V0 (Proc.devRef .tc main_arg0) = aX V0 :=
  (after_keep _ 10 stepOps319_ok main_arg0 (by decide +kernel) (val319 V0)).trans (val319_main_arg0 V0)
theorem val320_main_arg1 (V0 : Valuation τ sig (Elt Ideal)) : val320 V0 (Proc.devRef .tc main_arg1) = aA V0 :=
  (after_keep _ 10 stepOps319_ok main_arg1 (by decide +kernel) (val319 V0)).trans (val319_main_arg1 V0)
theorem val320_main_arg2 (V0 : Valuation τ sig (Elt Ideal)) : val320 V0 (Proc.devRef .tc main_arg2) = aB V0 :=
  (after_keep _ 10 stepOps319_ok main_arg2 (by decide +kernel) (val319 V0)).trans (val319_main_arg2 V0)
theorem val320_main_arg3 (V0 : Valuation τ sig (Elt Ideal)) : val320 V0 (Proc.devRef .tc main_arg3) = aC V0 :=
  (after_keep _ 10 stepOps319_ok main_arg3 (by decide +kernel) (val319 V0)).trans (val319_main_arg3 V0)
theorem val320_main_v3 (V0 : Valuation τ sig (Elt Ideal)) : val320 V0 (Proc.devRef .tc main_v3) = decay (aA V0) :=
  (after_keep _ 10 stepOps319_ok main_v3 (by decide +kernel) (val319 V0)).trans (val319_main_v3 V0)
theorem val320_h (V0 : Valuation τ sig (Elt Ideal)) : val320 V0 (Proc.devRef .tc main_v6395) = hI (aX V0) (aA V0) (aB V0) 319 := by
  refine ((step319_val (val319 V0)).1).trans ?_
  rw [val319_main_arg0 V0, val319_main_v3 V0, val319_main_arg2 V0, val319_h V0]
  exact (hI_at (aX V0) (aA V0) (aB V0) 318 319 (by decide) rfl).symm
theorem val320_y (V0 : Valuation τ sig (Elt Ideal)) : val320 V0 (Proc.devRef .tc main_v6403) = yJ (aX V0) (aA V0) (aB V0) (aC V0) 320 := by
  refine ((step319_val (val319 V0)).2).trans ?_
  rw [val319_main_arg0 V0, val319_main_v3 V0, val319_main_arg2 V0, val319_main_arg3 V0, val319_h V0, val319_y V0]
  rw [← hI_at (aX V0) (aA V0) (aB V0) 318 319 (by decide) rfl]
  exact (yJ_at (aX V0) (aA V0) (aB V0) (aC V0) 319 320 (by decide) rfl).symm
/-- The contents after step 320. -/
def val321 (V0 : Valuation τ sig (Elt Ideal)) : Valuation τ sig (Elt Ideal) := after (stepOps320 (F := Ideal)) (val320 V0)
theorem val321_main_arg0 (V0 : Valuation τ sig (Elt Ideal)) : val321 V0 (Proc.devRef .tc main_arg0) = aX V0 :=
  (after_keep _ 10 stepOps320_ok main_arg0 (by decide +kernel) (val320 V0)).trans (val320_main_arg0 V0)
theorem val321_main_arg1 (V0 : Valuation τ sig (Elt Ideal)) : val321 V0 (Proc.devRef .tc main_arg1) = aA V0 :=
  (after_keep _ 10 stepOps320_ok main_arg1 (by decide +kernel) (val320 V0)).trans (val320_main_arg1 V0)
theorem val321_main_arg2 (V0 : Valuation τ sig (Elt Ideal)) : val321 V0 (Proc.devRef .tc main_arg2) = aB V0 :=
  (after_keep _ 10 stepOps320_ok main_arg2 (by decide +kernel) (val320 V0)).trans (val320_main_arg2 V0)
theorem val321_main_arg3 (V0 : Valuation τ sig (Elt Ideal)) : val321 V0 (Proc.devRef .tc main_arg3) = aC V0 :=
  (after_keep _ 10 stepOps320_ok main_arg3 (by decide +kernel) (val320 V0)).trans (val320_main_arg3 V0)
theorem val321_main_v3 (V0 : Valuation τ sig (Elt Ideal)) : val321 V0 (Proc.devRef .tc main_v3) = decay (aA V0) :=
  (after_keep _ 10 stepOps320_ok main_v3 (by decide +kernel) (val320 V0)).trans (val320_main_v3 V0)
theorem val321_h (V0 : Valuation τ sig (Elt Ideal)) : val321 V0 (Proc.devRef .tc main_v6415) = hI (aX V0) (aA V0) (aB V0) 320 := by
  refine ((step320_val (val320 V0)).1).trans ?_
  rw [val320_main_arg0 V0, val320_main_v3 V0, val320_main_arg2 V0, val320_h V0]
  exact (hI_at (aX V0) (aA V0) (aB V0) 319 320 (by decide) rfl).symm
theorem val321_y (V0 : Valuation τ sig (Elt Ideal)) : val321 V0 (Proc.devRef .tc main_v6423) = yJ (aX V0) (aA V0) (aB V0) (aC V0) 321 := by
  refine ((step320_val (val320 V0)).2).trans ?_
  rw [val320_main_arg0 V0, val320_main_v3 V0, val320_main_arg2 V0, val320_main_arg3 V0, val320_h V0, val320_y V0]
  rw [← hI_at (aX V0) (aA V0) (aB V0) 319 320 (by decide) rfl]
  exact (yJ_at (aX V0) (aA V0) (aB V0) (aC V0) 320 321 (by decide) rfl).symm
/-- The contents after step 321. -/
def val322 (V0 : Valuation τ sig (Elt Ideal)) : Valuation τ sig (Elt Ideal) := after (stepOps321 (F := Ideal)) (val321 V0)
theorem val322_main_arg0 (V0 : Valuation τ sig (Elt Ideal)) : val322 V0 (Proc.devRef .tc main_arg0) = aX V0 :=
  (after_keep _ 10 stepOps321_ok main_arg0 (by decide +kernel) (val321 V0)).trans (val321_main_arg0 V0)
theorem val322_main_arg1 (V0 : Valuation τ sig (Elt Ideal)) : val322 V0 (Proc.devRef .tc main_arg1) = aA V0 :=
  (after_keep _ 10 stepOps321_ok main_arg1 (by decide +kernel) (val321 V0)).trans (val321_main_arg1 V0)
theorem val322_main_arg2 (V0 : Valuation τ sig (Elt Ideal)) : val322 V0 (Proc.devRef .tc main_arg2) = aB V0 :=
  (after_keep _ 10 stepOps321_ok main_arg2 (by decide +kernel) (val321 V0)).trans (val321_main_arg2 V0)
theorem val322_main_arg3 (V0 : Valuation τ sig (Elt Ideal)) : val322 V0 (Proc.devRef .tc main_arg3) = aC V0 :=
  (after_keep _ 10 stepOps321_ok main_arg3 (by decide +kernel) (val321 V0)).trans (val321_main_arg3 V0)
theorem val322_main_v3 (V0 : Valuation τ sig (Elt Ideal)) : val322 V0 (Proc.devRef .tc main_v3) = decay (aA V0) :=
  (after_keep _ 10 stepOps321_ok main_v3 (by decide +kernel) (val321 V0)).trans (val321_main_v3 V0)
theorem val322_h (V0 : Valuation τ sig (Elt Ideal)) : val322 V0 (Proc.devRef .tc main_v6435) = hI (aX V0) (aA V0) (aB V0) 321 := by
  refine ((step321_val (val321 V0)).1).trans ?_
  rw [val321_main_arg0 V0, val321_main_v3 V0, val321_main_arg2 V0, val321_h V0]
  exact (hI_at (aX V0) (aA V0) (aB V0) 320 321 (by decide) rfl).symm
theorem val322_y (V0 : Valuation τ sig (Elt Ideal)) : val322 V0 (Proc.devRef .tc main_v6443) = yJ (aX V0) (aA V0) (aB V0) (aC V0) 322 := by
  refine ((step321_val (val321 V0)).2).trans ?_
  rw [val321_main_arg0 V0, val321_main_v3 V0, val321_main_arg2 V0, val321_main_arg3 V0, val321_h V0, val321_y V0]
  rw [← hI_at (aX V0) (aA V0) (aB V0) 320 321 (by decide) rfl]
  exact (yJ_at (aX V0) (aA V0) (aB V0) (aC V0) 321 322 (by decide) rfl).symm
/-- The contents after step 322. -/
def val323 (V0 : Valuation τ sig (Elt Ideal)) : Valuation τ sig (Elt Ideal) := after (stepOps322 (F := Ideal)) (val322 V0)
theorem val323_main_arg0 (V0 : Valuation τ sig (Elt Ideal)) : val323 V0 (Proc.devRef .tc main_arg0) = aX V0 :=
  (after_keep _ 10 stepOps322_ok main_arg0 (by decide +kernel) (val322 V0)).trans (val322_main_arg0 V0)
theorem val323_main_arg1 (V0 : Valuation τ sig (Elt Ideal)) : val323 V0 (Proc.devRef .tc main_arg1) = aA V0 :=
  (after_keep _ 10 stepOps322_ok main_arg1 (by decide +kernel) (val322 V0)).trans (val322_main_arg1 V0)
theorem val323_main_arg2 (V0 : Valuation τ sig (Elt Ideal)) : val323 V0 (Proc.devRef .tc main_arg2) = aB V0 :=
  (after_keep _ 10 stepOps322_ok main_arg2 (by decide +kernel) (val322 V0)).trans (val322_main_arg2 V0)
theorem val323_main_arg3 (V0 : Valuation τ sig (Elt Ideal)) : val323 V0 (Proc.devRef .tc main_arg3) = aC V0 :=
  (after_keep _ 10 stepOps322_ok main_arg3 (by decide +kernel) (val322 V0)).trans (val322_main_arg3 V0)
theorem val323_main_v3 (V0 : Valuation τ sig (Elt Ideal)) : val323 V0 (Proc.devRef .tc main_v3) = decay (aA V0) :=
  (after_keep _ 10 stepOps322_ok main_v3 (by decide +kernel) (val322 V0)).trans (val322_main_v3 V0)
theorem val323_h (V0 : Valuation τ sig (Elt Ideal)) : val323 V0 (Proc.devRef .tc main_v6455) = hI (aX V0) (aA V0) (aB V0) 322 := by
  refine ((step322_val (val322 V0)).1).trans ?_
  rw [val322_main_arg0 V0, val322_main_v3 V0, val322_main_arg2 V0, val322_h V0]
  exact (hI_at (aX V0) (aA V0) (aB V0) 321 322 (by decide) rfl).symm
theorem val323_y (V0 : Valuation τ sig (Elt Ideal)) : val323 V0 (Proc.devRef .tc main_v6463) = yJ (aX V0) (aA V0) (aB V0) (aC V0) 323 := by
  refine ((step322_val (val322 V0)).2).trans ?_
  rw [val322_main_arg0 V0, val322_main_v3 V0, val322_main_arg2 V0, val322_main_arg3 V0, val322_h V0, val322_y V0]
  rw [← hI_at (aX V0) (aA V0) (aB V0) 321 322 (by decide) rfl]
  exact (yJ_at (aX V0) (aA V0) (aB V0) (aC V0) 322 323 (by decide) rfl).symm
/-- The contents after step 323. -/
def val324 (V0 : Valuation τ sig (Elt Ideal)) : Valuation τ sig (Elt Ideal) := after (stepOps323 (F := Ideal)) (val323 V0)
theorem val324_main_arg0 (V0 : Valuation τ sig (Elt Ideal)) : val324 V0 (Proc.devRef .tc main_arg0) = aX V0 :=
  (after_keep _ 10 stepOps323_ok main_arg0 (by decide +kernel) (val323 V0)).trans (val323_main_arg0 V0)
theorem val324_main_arg1 (V0 : Valuation τ sig (Elt Ideal)) : val324 V0 (Proc.devRef .tc main_arg1) = aA V0 :=
  (after_keep _ 10 stepOps323_ok main_arg1 (by decide +kernel) (val323 V0)).trans (val323_main_arg1 V0)
theorem val324_main_arg2 (V0 : Valuation τ sig (Elt Ideal)) : val324 V0 (Proc.devRef .tc main_arg2) = aB V0 :=
  (after_keep _ 10 stepOps323_ok main_arg2 (by decide +kernel) (val323 V0)).trans (val323_main_arg2 V0)
theorem val324_main_arg3 (V0 : Valuation τ sig (Elt Ideal)) : val324 V0 (Proc.devRef .tc main_arg3) = aC V0 :=
  (after_keep _ 10 stepOps323_ok main_arg3 (by decide +kernel) (val323 V0)).trans (val323_main_arg3 V0)
theorem val324_main_v3 (V0 : Valuation τ sig (Elt Ideal)) : val324 V0 (Proc.devRef .tc main_v3) = decay (aA V0) :=
  (after_keep _ 10 stepOps323_ok main_v3 (by decide +kernel) (val323 V0)).trans (val323_main_v3 V0)
theorem val324_h (V0 : Valuation τ sig (Elt Ideal)) : val324 V0 (Proc.devRef .tc main_v6475) = hI (aX V0) (aA V0) (aB V0) 323 := by
  refine ((step323_val (val323 V0)).1).trans ?_
  rw [val323_main_arg0 V0, val323_main_v3 V0, val323_main_arg2 V0, val323_h V0]
  exact (hI_at (aX V0) (aA V0) (aB V0) 322 323 (by decide) rfl).symm
theorem val324_y (V0 : Valuation τ sig (Elt Ideal)) : val324 V0 (Proc.devRef .tc main_v6483) = yJ (aX V0) (aA V0) (aB V0) (aC V0) 324 := by
  refine ((step323_val (val323 V0)).2).trans ?_
  rw [val323_main_arg0 V0, val323_main_v3 V0, val323_main_arg2 V0, val323_main_arg3 V0, val323_h V0, val323_y V0]
  rw [← hI_at (aX V0) (aA V0) (aB V0) 322 323 (by decide) rfl]
  exact (yJ_at (aX V0) (aA V0) (aB V0) (aC V0) 323 324 (by decide) rfl).symm
/-- The contents after step 324. -/
def val325 (V0 : Valuation τ sig (Elt Ideal)) : Valuation τ sig (Elt Ideal) := after (stepOps324 (F := Ideal)) (val324 V0)
theorem val325_main_arg0 (V0 : Valuation τ sig (Elt Ideal)) : val325 V0 (Proc.devRef .tc main_arg0) = aX V0 :=
  (after_keep _ 10 stepOps324_ok main_arg0 (by decide +kernel) (val324 V0)).trans (val324_main_arg0 V0)
theorem val325_main_arg1 (V0 : Valuation τ sig (Elt Ideal)) : val325 V0 (Proc.devRef .tc main_arg1) = aA V0 :=
  (after_keep _ 10 stepOps324_ok main_arg1 (by decide +kernel) (val324 V0)).trans (val324_main_arg1 V0)
theorem val325_main_arg2 (V0 : Valuation τ sig (Elt Ideal)) : val325 V0 (Proc.devRef .tc main_arg2) = aB V0 :=
  (after_keep _ 10 stepOps324_ok main_arg2 (by decide +kernel) (val324 V0)).trans (val324_main_arg2 V0)
theorem val325_main_arg3 (V0 : Valuation τ sig (Elt Ideal)) : val325 V0 (Proc.devRef .tc main_arg3) = aC V0 :=
  (after_keep _ 10 stepOps324_ok main_arg3 (by decide +kernel) (val324 V0)).trans (val324_main_arg3 V0)
theorem val325_main_v3 (V0 : Valuation τ sig (Elt Ideal)) : val325 V0 (Proc.devRef .tc main_v3) = decay (aA V0) :=
  (after_keep _ 10 stepOps324_ok main_v3 (by decide +kernel) (val324 V0)).trans (val324_main_v3 V0)
theorem val325_h (V0 : Valuation τ sig (Elt Ideal)) : val325 V0 (Proc.devRef .tc main_v6495) = hI (aX V0) (aA V0) (aB V0) 324 := by
  refine ((step324_val (val324 V0)).1).trans ?_
  rw [val324_main_arg0 V0, val324_main_v3 V0, val324_main_arg2 V0, val324_h V0]
  exact (hI_at (aX V0) (aA V0) (aB V0) 323 324 (by decide) rfl).symm
theorem val325_y (V0 : Valuation τ sig (Elt Ideal)) : val325 V0 (Proc.devRef .tc main_v6503) = yJ (aX V0) (aA V0) (aB V0) (aC V0) 325 := by
  refine ((step324_val (val324 V0)).2).trans ?_
  rw [val324_main_arg0 V0, val324_main_v3 V0, val324_main_arg2 V0, val324_main_arg3 V0, val324_h V0, val324_y V0]
  rw [← hI_at (aX V0) (aA V0) (aB V0) 323 324 (by decide) rfl]
  exact (yJ_at (aX V0) (aA V0) (aB V0) (aC V0) 324 325 (by decide) rfl).symm
/-- The contents after step 325. -/
def val326 (V0 : Valuation τ sig (Elt Ideal)) : Valuation τ sig (Elt Ideal) := after (stepOps325 (F := Ideal)) (val325 V0)
theorem val326_main_arg0 (V0 : Valuation τ sig (Elt Ideal)) : val326 V0 (Proc.devRef .tc main_arg0) = aX V0 :=
  (after_keep _ 10 stepOps325_ok main_arg0 (by decide +kernel) (val325 V0)).trans (val325_main_arg0 V0)
theorem val326_main_arg1 (V0 : Valuation τ sig (Elt Ideal)) : val326 V0 (Proc.devRef .tc main_arg1) = aA V0 :=
  (after_keep _ 10 stepOps325_ok main_arg1 (by decide +kernel) (val325 V0)).trans (val325_main_arg1 V0)
theorem val326_main_arg2 (V0 : Valuation τ sig (Elt Ideal)) : val326 V0 (Proc.devRef .tc main_arg2) = aB V0 :=
  (after_keep _ 10 stepOps325_ok main_arg2 (by decide +kernel) (val325 V0)).trans (val325_main_arg2 V0)
theorem val326_main_arg3 (V0 : Valuation τ sig (Elt Ideal)) : val326 V0 (Proc.devRef .tc main_arg3) = aC V0 :=
  (after_keep _ 10 stepOps325_ok main_arg3 (by decide +kernel) (val325 V0)).trans (val325_main_arg3 V0)
theorem val326_main_v3 (V0 : Valuation τ sig (Elt Ideal)) : val326 V0 (Proc.devRef .tc main_v3) = decay (aA V0) :=
  (after_keep _ 10 stepOps325_ok main_v3 (by decide +kernel) (val325 V0)).trans (val325_main_v3 V0)
theorem val326_h (V0 : Valuation τ sig (Elt Ideal)) : val326 V0 (Proc.devRef .tc main_v6515) = hI (aX V0) (aA V0) (aB V0) 325 := by
  refine ((step325_val (val325 V0)).1).trans ?_
  rw [val325_main_arg0 V0, val325_main_v3 V0, val325_main_arg2 V0, val325_h V0]
  exact (hI_at (aX V0) (aA V0) (aB V0) 324 325 (by decide) rfl).symm
theorem val326_y (V0 : Valuation τ sig (Elt Ideal)) : val326 V0 (Proc.devRef .tc main_v6523) = yJ (aX V0) (aA V0) (aB V0) (aC V0) 326 := by
  refine ((step325_val (val325 V0)).2).trans ?_
  rw [val325_main_arg0 V0, val325_main_v3 V0, val325_main_arg2 V0, val325_main_arg3 V0, val325_h V0, val325_y V0]
  rw [← hI_at (aX V0) (aA V0) (aB V0) 324 325 (by decide) rfl]
  exact (yJ_at (aX V0) (aA V0) (aB V0) (aC V0) 325 326 (by decide) rfl).symm
/-- The contents after step 326. -/
def val327 (V0 : Valuation τ sig (Elt Ideal)) : Valuation τ sig (Elt Ideal) := after (stepOps326 (F := Ideal)) (val326 V0)
theorem val327_main_arg0 (V0 : Valuation τ sig (Elt Ideal)) : val327 V0 (Proc.devRef .tc main_arg0) = aX V0 :=
  (after_keep _ 10 stepOps326_ok main_arg0 (by decide +kernel) (val326 V0)).trans (val326_main_arg0 V0)
theorem val327_main_arg1 (V0 : Valuation τ sig (Elt Ideal)) : val327 V0 (Proc.devRef .tc main_arg1) = aA V0 :=
  (after_keep _ 10 stepOps326_ok main_arg1 (by decide +kernel) (val326 V0)).trans (val326_main_arg1 V0)
theorem val327_main_arg2 (V0 : Valuation τ sig (Elt Ideal)) : val327 V0 (Proc.devRef .tc main_arg2) = aB V0 :=
  (after_keep _ 10 stepOps326_ok main_arg2 (by decide +kernel) (val326 V0)).trans (val326_main_arg2 V0)
theorem val327_main_arg3 (V0 : Valuation τ sig (Elt Ideal)) : val327 V0 (Proc.devRef .tc main_arg3) = aC V0 :=
  (after_keep _ 10 stepOps326_ok main_arg3 (by decide +kernel) (val326 V0)).trans (val326_main_arg3 V0)
theorem val327_main_v3 (V0 : Valuation τ sig (Elt Ideal)) : val327 V0 (Proc.devRef .tc main_v3) = decay (aA V0) :=
  (after_keep _ 10 stepOps326_ok main_v3 (by decide +kernel) (val326 V0)).trans (val326_main_v3 V0)
theorem val327_h (V0 : Valuation τ sig (Elt Ideal)) : val327 V0 (Proc.devRef .tc main_v6535) = hI (aX V0) (aA V0) (aB V0) 326 := by
  refine ((step326_val (val326 V0)).1).trans ?_
  rw [val326_main_arg0 V0, val326_main_v3 V0, val326_main_arg2 V0, val326_h V0]
  exact (hI_at (aX V0) (aA V0) (aB V0) 325 326 (by decide) rfl).symm
theorem val327_y (V0 : Valuation τ sig (Elt Ideal)) : val327 V0 (Proc.devRef .tc main_v6543) = yJ (aX V0) (aA V0) (aB V0) (aC V0) 327 := by
  refine ((step326_val (val326 V0)).2).trans ?_
  rw [val326_main_arg0 V0, val326_main_v3 V0, val326_main_arg2 V0, val326_main_arg3 V0, val326_h V0, val326_y V0]
  rw [← hI_at (aX V0) (aA V0) (aB V0) 325 326 (by decide) rfl]
  exact (yJ_at (aX V0) (aA V0) (aB V0) (aC V0) 326 327 (by decide) rfl).symm
/-- The contents after step 327. -/
def val328 (V0 : Valuation τ sig (Elt Ideal)) : Valuation τ sig (Elt Ideal) := after (stepOps327 (F := Ideal)) (val327 V0)
theorem val328_main_arg0 (V0 : Valuation τ sig (Elt Ideal)) : val328 V0 (Proc.devRef .tc main_arg0) = aX V0 :=
  (after_keep _ 10 stepOps327_ok main_arg0 (by decide +kernel) (val327 V0)).trans (val327_main_arg0 V0)
theorem val328_main_arg1 (V0 : Valuation τ sig (Elt Ideal)) : val328 V0 (Proc.devRef .tc main_arg1) = aA V0 :=
  (after_keep _ 10 stepOps327_ok main_arg1 (by decide +kernel) (val327 V0)).trans (val327_main_arg1 V0)
theorem val328_main_arg2 (V0 : Valuation τ sig (Elt Ideal)) : val328 V0 (Proc.devRef .tc main_arg2) = aB V0 :=
  (after_keep _ 10 stepOps327_ok main_arg2 (by decide +kernel) (val327 V0)).trans (val327_main_arg2 V0)
theorem val328_main_arg3 (V0 : Valuation τ sig (Elt Ideal)) : val328 V0 (Proc.devRef .tc main_arg3) = aC V0 :=
  (after_keep _ 10 stepOps327_ok main_arg3 (by decide +kernel) (val327 V0)).trans (val327_main_arg3 V0)
theorem val328_main_v3 (V0 : Valuation τ sig (Elt Ideal)) : val328 V0 (Proc.devRef .tc main_v3) = decay (aA V0) :=
  (after_keep _ 10 stepOps327_ok main_v3 (by decide +kernel) (val327 V0)).trans (val327_main_v3 V0)
theorem val328_h (V0 : Valuation τ sig (Elt Ideal)) : val328 V0 (Proc.devRef .tc main_v6555) = hI (aX V0) (aA V0) (aB V0) 327 := by
  refine ((step327_val (val327 V0)).1).trans ?_
  rw [val327_main_arg0 V0, val327_main_v3 V0, val327_main_arg2 V0, val327_h V0]
  exact (hI_at (aX V0) (aA V0) (aB V0) 326 327 (by decide) rfl).symm
theorem val328_y (V0 : Valuation τ sig (Elt Ideal)) : val328 V0 (Proc.devRef .tc main_v6563) = yJ (aX V0) (aA V0) (aB V0) (aC V0) 328 := by
  refine ((step327_val (val327 V0)).2).trans ?_
  rw [val327_main_arg0 V0, val327_main_v3 V0, val327_main_arg2 V0, val327_main_arg3 V0, val327_h V0, val327_y V0]
  rw [← hI_at (aX V0) (aA V0) (aB V0) 326 327 (by decide) rfl]
  exact (yJ_at (aX V0) (aA V0) (aB V0) (aC V0) 327 328 (by decide) rfl).symm
/-- The contents after step 328. -/
def val329 (V0 : Valuation τ sig (Elt Ideal)) : Valuation τ sig (Elt Ideal) := after (stepOps328 (F := Ideal)) (val328 V0)
theorem val329_main_arg0 (V0 : Valuation τ sig (Elt Ideal)) : val329 V0 (Proc.devRef .tc main_arg0) = aX V0 :=
  (after_keep _ 10 stepOps328_ok main_arg0 (by decide +kernel) (val328 V0)).trans (val328_main_arg0 V0)
theorem val329_main_arg1 (V0 : Valuation τ sig (Elt Ideal)) : val329 V0 (Proc.devRef .tc main_arg1) = aA V0 :=
  (after_keep _ 10 stepOps328_ok main_arg1 (by decide +kernel) (val328 V0)).trans (val328_main_arg1 V0)
theorem val329_main_arg2 (V0 : Valuation τ sig (Elt Ideal)) : val329 V0 (Proc.devRef .tc main_arg2) = aB V0 :=
  (after_keep _ 10 stepOps328_ok main_arg2 (by decide +kernel) (val328 V0)).trans (val328_main_arg2 V0)
theorem val329_main_arg3 (V0 : Valuation τ sig (Elt Ideal)) : val329 V0 (Proc.devRef .tc main_arg3) = aC V0 :=
  (after_keep _ 10 stepOps328_ok main_arg3 (by decide +kernel) (val328 V0)).trans (val328_main_arg3 V0)
theorem val329_main_v3 (V0 : Valuation τ sig (Elt Ideal)) : val329 V0 (Proc.devRef .tc main_v3) = decay (aA V0) :=
  (after_keep _ 10 stepOps328_ok main_v3 (by decide +kernel) (val328 V0)).trans (val328_main_v3 V0)
theorem val329_h (V0 : Valuation τ sig (Elt Ideal)) : val329 V0 (Proc.devRef .tc main_v6575) = hI (aX V0) (aA V0) (aB V0) 328 := by
  refine ((step328_val (val328 V0)).1).trans ?_
  rw [val328_main_arg0 V0, val328_main_v3 V0, val328_main_arg2 V0, val328_h V0]
  exact (hI_at (aX V0) (aA V0) (aB V0) 327 328 (by decide) rfl).symm
theorem val329_y (V0 : Valuation τ sig (Elt Ideal)) : val329 V0 (Proc.devRef .tc main_v6583) = yJ (aX V0) (aA V0) (aB V0) (aC V0) 329 := by
  refine ((step328_val (val328 V0)).2).trans ?_
  rw [val328_main_arg0 V0, val328_main_v3 V0, val328_main_arg2 V0, val328_main_arg3 V0, val328_h V0, val328_y V0]
  rw [← hI_at (aX V0) (aA V0) (aB V0) 327 328 (by decide) rfl]
  exact (yJ_at (aX V0) (aA V0) (aB V0) (aC V0) 328 329 (by decide) rfl).symm
/-- The contents after step 329. -/
def val330 (V0 : Valuation τ sig (Elt Ideal)) : Valuation τ sig (Elt Ideal) := after (stepOps329 (F := Ideal)) (val329 V0)
theorem val330_main_arg0 (V0 : Valuation τ sig (Elt Ideal)) : val330 V0 (Proc.devRef .tc main_arg0) = aX V0 :=
  (after_keep _ 10 stepOps329_ok main_arg0 (by decide +kernel) (val329 V0)).trans (val329_main_arg0 V0)
theorem val330_main_arg1 (V0 : Valuation τ sig (Elt Ideal)) : val330 V0 (Proc.devRef .tc main_arg1) = aA V0 :=
  (after_keep _ 10 stepOps329_ok main_arg1 (by decide +kernel) (val329 V0)).trans (val329_main_arg1 V0)
theorem val330_main_arg2 (V0 : Valuation τ sig (Elt Ideal)) : val330 V0 (Proc.devRef .tc main_arg2) = aB V0 :=
  (after_keep _ 10 stepOps329_ok main_arg2 (by decide +kernel) (val329 V0)).trans (val329_main_arg2 V0)
theorem val330_main_arg3 (V0 : Valuation τ sig (Elt Ideal)) : val330 V0 (Proc.devRef .tc main_arg3) = aC V0 :=
  (after_keep _ 10 stepOps329_ok main_arg3 (by decide +kernel) (val329 V0)).trans (val329_main_arg3 V0)
theorem val330_main_v3 (V0 : Valuation τ sig (Elt Ideal)) : val330 V0 (Proc.devRef .tc main_v3) = decay (aA V0) :=
  (after_keep _ 10 stepOps329_ok main_v3 (by decide +kernel) (val329 V0)).trans (val329_main_v3 V0)
theorem val330_h (V0 : Valuation τ sig (Elt Ideal)) : val330 V0 (Proc.devRef .tc main_v6595) = hI (aX V0) (aA V0) (aB V0) 329 := by
  refine ((step329_val (val329 V0)).1).trans ?_
  rw [val329_main_arg0 V0, val329_main_v3 V0, val329_main_arg2 V0, val329_h V0]
  exact (hI_at (aX V0) (aA V0) (aB V0) 328 329 (by decide) rfl).symm
theorem val330_y (V0 : Valuation τ sig (Elt Ideal)) : val330 V0 (Proc.devRef .tc main_v6603) = yJ (aX V0) (aA V0) (aB V0) (aC V0) 330 := by
  refine ((step329_val (val329 V0)).2).trans ?_
  rw [val329_main_arg0 V0, val329_main_v3 V0, val329_main_arg2 V0, val329_main_arg3 V0, val329_h V0, val329_y V0]
  rw [← hI_at (aX V0) (aA V0) (aB V0) 328 329 (by decide) rfl]
  exact (yJ_at (aX V0) (aA V0) (aB V0) (aC V0) 329 330 (by decide) rfl).symm
/-- The contents after step 330. -/
def val331 (V0 : Valuation τ sig (Elt Ideal)) : Valuation τ sig (Elt Ideal) := after (stepOps330 (F := Ideal)) (val330 V0)
theorem val331_main_arg0 (V0 : Valuation τ sig (Elt Ideal)) : val331 V0 (Proc.devRef .tc main_arg0) = aX V0 :=
  (after_keep _ 10 stepOps330_ok main_arg0 (by decide +kernel) (val330 V0)).trans (val330_main_arg0 V0)
theorem val331_main_arg1 (V0 : Valuation τ sig (Elt Ideal)) : val331 V0 (Proc.devRef .tc main_arg1) = aA V0 :=
  (after_keep _ 10 stepOps330_ok main_arg1 (by decide +kernel) (val330 V0)).trans (val330_main_arg1 V0)
theorem val331_main_arg2 (V0 : Valuation τ sig (Elt Ideal)) : val331 V0 (Proc.devRef .tc main_arg2) = aB V0 :=
  (after_keep _ 10 stepOps330_ok main_arg2 (by decide +kernel) (val330 V0)).trans (val330_main_arg2 V0)
theorem val331_main_arg3 (V0 : Valuation τ sig (Elt Ideal)) : val331 V0 (Proc.devRef .tc main_arg3) = aC V0 :=
  (after_keep _ 10 stepOps330_ok main_arg3 (by decide +kernel) (val330 V0)).trans (val330_main_arg3 V0)
theorem val331_main_v3 (V0 : Valuation τ sig (Elt Ideal)) : val331 V0 (Proc.devRef .tc main_v3) = decay (aA V0) :=
  (after_keep _ 10 stepOps330_ok main_v3 (by decide +kernel) (val330 V0)).trans (val330_main_v3 V0)
theorem val331_h (V0 : Valuation τ sig (Elt Ideal)) : val331 V0 (Proc.devRef .tc main_v6615) = hI (aX V0) (aA V0) (aB V0) 330 := by
  refine ((step330_val (val330 V0)).1).trans ?_
  rw [val330_main_arg0 V0, val330_main_v3 V0, val330_main_arg2 V0, val330_h V0]
  exact (hI_at (aX V0) (aA V0) (aB V0) 329 330 (by decide) rfl).symm
theorem val331_y (V0 : Valuation τ sig (Elt Ideal)) : val331 V0 (Proc.devRef .tc main_v6623) = yJ (aX V0) (aA V0) (aB V0) (aC V0) 331 := by
  refine ((step330_val (val330 V0)).2).trans ?_
  rw [val330_main_arg0 V0, val330_main_v3 V0, val330_main_arg2 V0, val330_main_arg3 V0, val330_h V0, val330_y V0]
  rw [← hI_at (aX V0) (aA V0) (aB V0) 329 330 (by decide) rfl]
  exact (yJ_at (aX V0) (aA V0) (aB V0) (aC V0) 330 331 (by decide) rfl).symm
/-- The contents after step 331. -/
def val332 (V0 : Valuation τ sig (Elt Ideal)) : Valuation τ sig (Elt Ideal) := after (stepOps331 (F := Ideal)) (val331 V0)
theorem val332_main_arg0 (V0 : Valuation τ sig (Elt Ideal)) : val332 V0 (Proc.devRef .tc main_arg0) = aX V0 :=
  (after_keep _ 10 stepOps331_ok main_arg0 (by decide +kernel) (val331 V0)).trans (val331_main_arg0 V0)
theorem val332_main_arg1 (V0 : Valuation τ sig (Elt Ideal)) : val332 V0 (Proc.devRef .tc main_arg1) = aA V0 :=
  (after_keep _ 10 stepOps331_ok main_arg1 (by decide +kernel) (val331 V0)).trans (val331_main_arg1 V0)
theorem val332_main_arg2 (V0 : Valuation τ sig (Elt Ideal)) : val332 V0 (Proc.devRef .tc main_arg2) = aB V0 :=
  (after_keep _ 10 stepOps331_ok main_arg2 (by decide +kernel) (val331 V0)).trans (val331_main_arg2 V0)
theorem val332_main_arg3 (V0 : Valuation τ sig (Elt Ideal)) : val332 V0 (Proc.devRef .tc main_arg3) = aC V0 :=
  (after_keep _ 10 stepOps331_ok main_arg3 (by decide +kernel) (val331 V0)).trans (val331_main_arg3 V0)
theorem val332_main_v3 (V0 : Valuation τ sig (Elt Ideal)) : val332 V0 (Proc.devRef .tc main_v3) = decay (aA V0) :=
  (after_keep _ 10 stepOps331_ok main_v3 (by decide +kernel) (val331 V0)).trans (val331_main_v3 V0)
theorem val332_h (V0 : Valuation τ sig (Elt Ideal)) : val332 V0 (Proc.devRef .tc main_v6635) = hI (aX V0) (aA V0) (aB V0) 331 := by
  refine ((step331_val (val331 V0)).1).trans ?_
  rw [val331_main_arg0 V0, val331_main_v3 V0, val331_main_arg2 V0, val331_h V0]
  exact (hI_at (aX V0) (aA V0) (aB V0) 330 331 (by decide) rfl).symm
theorem val332_y (V0 : Valuation τ sig (Elt Ideal)) : val332 V0 (Proc.devRef .tc main_v6643) = yJ (aX V0) (aA V0) (aB V0) (aC V0) 332 := by
  refine ((step331_val (val331 V0)).2).trans ?_
  rw [val331_main_arg0 V0, val331_main_v3 V0, val331_main_arg2 V0, val331_main_arg3 V0, val331_h V0, val331_y V0]
  rw [← hI_at (aX V0) (aA V0) (aB V0) 330 331 (by decide) rfl]
  exact (yJ_at (aX V0) (aA V0) (aB V0) (aC V0) 331 332 (by decide) rfl).symm
/-- The contents after step 332. -/
def val333 (V0 : Valuation τ sig (Elt Ideal)) : Valuation τ sig (Elt Ideal) := after (stepOps332 (F := Ideal)) (val332 V0)
theorem val333_main_arg0 (V0 : Valuation τ sig (Elt Ideal)) : val333 V0 (Proc.devRef .tc main_arg0) = aX V0 :=
  (after_keep _ 10 stepOps332_ok main_arg0 (by decide +kernel) (val332 V0)).trans (val332_main_arg0 V0)
theorem val333_main_arg1 (V0 : Valuation τ sig (Elt Ideal)) : val333 V0 (Proc.devRef .tc main_arg1) = aA V0 :=
  (after_keep _ 10 stepOps332_ok main_arg1 (by decide +kernel) (val332 V0)).trans (val332_main_arg1 V0)
theorem val333_main_arg2 (V0 : Valuation τ sig (Elt Ideal)) : val333 V0 (Proc.devRef .tc main_arg2) = aB V0 :=
  (after_keep _ 10 stepOps332_ok main_arg2 (by decide +kernel) (val332 V0)).trans (val332_main_arg2 V0)
theorem val333_main_arg3 (V0 : Valuation τ sig (Elt Ideal)) : val333 V0 (Proc.devRef .tc main_arg3) = aC V0 :=
  (after_keep _ 10 stepOps332_ok main_arg3 (by decide +kernel) (val332 V0)).trans (val332_main_arg3 V0)
theorem val333_main_v3 (V0 : Valuation τ sig (Elt Ideal)) : val333 V0 (Proc.devRef .tc main_v3) = decay (aA V0) :=
  (after_keep _ 10 stepOps332_ok main_v3 (by decide +kernel) (val332 V0)).trans (val332_main_v3 V0)
theorem val333_h (V0 : Valuation τ sig (Elt Ideal)) : val333 V0 (Proc.devRef .tc main_v6655) = hI (aX V0) (aA V0) (aB V0) 332 := by
  refine ((step332_val (val332 V0)).1).trans ?_
  rw [val332_main_arg0 V0, val332_main_v3 V0, val332_main_arg2 V0, val332_h V0]
  exact (hI_at (aX V0) (aA V0) (aB V0) 331 332 (by decide) rfl).symm
theorem val333_y (V0 : Valuation τ sig (Elt Ideal)) : val333 V0 (Proc.devRef .tc main_v6663) = yJ (aX V0) (aA V0) (aB V0) (aC V0) 333 := by
  refine ((step332_val (val332 V0)).2).trans ?_
  rw [val332_main_arg0 V0, val332_main_v3 V0, val332_main_arg2 V0, val332_main_arg3 V0, val332_h V0, val332_y V0]
  rw [← hI_at (aX V0) (aA V0) (aB V0) 331 332 (by decide) rfl]
  exact (yJ_at (aX V0) (aA V0) (aB V0) (aC V0) 332 333 (by decide) rfl).symm
/-- The contents after step 333. -/
def val334 (V0 : Valuation τ sig (Elt Ideal)) : Valuation τ sig (Elt Ideal) := after (stepOps333 (F := Ideal)) (val333 V0)
theorem val334_main_arg0 (V0 : Valuation τ sig (Elt Ideal)) : val334 V0 (Proc.devRef .tc main_arg0) = aX V0 :=
  (after_keep _ 10 stepOps333_ok main_arg0 (by decide +kernel) (val333 V0)).trans (val333_main_arg0 V0)
theorem val334_main_arg1 (V0 : Valuation τ sig (Elt Ideal)) : val334 V0 (Proc.devRef .tc main_arg1) = aA V0 :=
  (after_keep _ 10 stepOps333_ok main_arg1 (by decide +kernel) (val333 V0)).trans (val333_main_arg1 V0)
theorem val334_main_arg2 (V0 : Valuation τ sig (Elt Ideal)) : val334 V0 (Proc.devRef .tc main_arg2) = aB V0 :=
  (after_keep _ 10 stepOps333_ok main_arg2 (by decide +kernel) (val333 V0)).trans (val333_main_arg2 V0)
theorem val334_main_arg3 (V0 : Valuation τ sig (Elt Ideal)) : val334 V0 (Proc.devRef .tc main_arg3) = aC V0 :=
  (after_keep _ 10 stepOps333_ok main_arg3 (by decide +kernel) (val333 V0)).trans (val333_main_arg3 V0)
theorem val334_main_v3 (V0 : Valuation τ sig (Elt Ideal)) : val334 V0 (Proc.devRef .tc main_v3) = decay (aA V0) :=
  (after_keep _ 10 stepOps333_ok main_v3 (by decide +kernel) (val333 V0)).trans (val333_main_v3 V0)
theorem val334_h (V0 : Valuation τ sig (Elt Ideal)) : val334 V0 (Proc.devRef .tc main_v6675) = hI (aX V0) (aA V0) (aB V0) 333 := by
  refine ((step333_val (val333 V0)).1).trans ?_
  rw [val333_main_arg0 V0, val333_main_v3 V0, val333_main_arg2 V0, val333_h V0]
  exact (hI_at (aX V0) (aA V0) (aB V0) 332 333 (by decide) rfl).symm
theorem val334_y (V0 : Valuation τ sig (Elt Ideal)) : val334 V0 (Proc.devRef .tc main_v6683) = yJ (aX V0) (aA V0) (aB V0) (aC V0) 334 := by
  refine ((step333_val (val333 V0)).2).trans ?_
  rw [val333_main_arg0 V0, val333_main_v3 V0, val333_main_arg2 V0, val333_main_arg3 V0, val333_h V0, val333_y V0]
  rw [← hI_at (aX V0) (aA V0) (aB V0) 332 333 (by decide) rfl]
  exact (yJ_at (aX V0) (aA V0) (aB V0) (aC V0) 333 334 (by decide) rfl).symm
/-- The contents after step 334. -/
def val335 (V0 : Valuation τ sig (Elt Ideal)) : Valuation τ sig (Elt Ideal) := after (stepOps334 (F := Ideal)) (val334 V0)
theorem val335_main_arg0 (V0 : Valuation τ sig (Elt Ideal)) : val335 V0 (Proc.devRef .tc main_arg0) = aX V0 :=
  (after_keep _ 10 stepOps334_ok main_arg0 (by decide +kernel) (val334 V0)).trans (val334_main_arg0 V0)
theorem val335_main_arg1 (V0 : Valuation τ sig (Elt Ideal)) : val335 V0 (Proc.devRef .tc main_arg1) = aA V0 :=
  (after_keep _ 10 stepOps334_ok main_arg1 (by decide +kernel) (val334 V0)).trans (val334_main_arg1 V0)
theorem val335_main_arg2 (V0 : Valuation τ sig (Elt Ideal)) : val335 V0 (Proc.devRef .tc main_arg2) = aB V0 :=
  (after_keep _ 10 stepOps334_ok main_arg2 (by decide +kernel) (val334 V0)).trans (val334_main_arg2 V0)
theorem val335_main_arg3 (V0 : Valuation τ sig (Elt Ideal)) : val335 V0 (Proc.devRef .tc main_arg3) = aC V0 :=
  (after_keep _ 10 stepOps334_ok main_arg3 (by decide +kernel) (val334 V0)).trans (val334_main_arg3 V0)
theorem val335_main_v3 (V0 : Valuation τ sig (Elt Ideal)) : val335 V0 (Proc.devRef .tc main_v3) = decay (aA V0) :=
  (after_keep _ 10 stepOps334_ok main_v3 (by decide +kernel) (val334 V0)).trans (val334_main_v3 V0)
theorem val335_h (V0 : Valuation τ sig (Elt Ideal)) : val335 V0 (Proc.devRef .tc main_v6695) = hI (aX V0) (aA V0) (aB V0) 334 := by
  refine ((step334_val (val334 V0)).1).trans ?_
  rw [val334_main_arg0 V0, val334_main_v3 V0, val334_main_arg2 V0, val334_h V0]
  exact (hI_at (aX V0) (aA V0) (aB V0) 333 334 (by decide) rfl).symm
theorem val335_y (V0 : Valuation τ sig (Elt Ideal)) : val335 V0 (Proc.devRef .tc main_v6703) = yJ (aX V0) (aA V0) (aB V0) (aC V0) 335 := by
  refine ((step334_val (val334 V0)).2).trans ?_
  rw [val334_main_arg0 V0, val334_main_v3 V0, val334_main_arg2 V0, val334_main_arg3 V0, val334_h V0, val334_y V0]
  rw [← hI_at (aX V0) (aA V0) (aB V0) 333 334 (by decide) rfl]
  exact (yJ_at (aX V0) (aA V0) (aB V0) (aC V0) 334 335 (by decide) rfl).symm
/-- The contents after step 335. -/
def val336 (V0 : Valuation τ sig (Elt Ideal)) : Valuation τ sig (Elt Ideal) := after (stepOps335 (F := Ideal)) (val335 V0)
theorem val336_main_arg0 (V0 : Valuation τ sig (Elt Ideal)) : val336 V0 (Proc.devRef .tc main_arg0) = aX V0 :=
  (after_keep _ 10 stepOps335_ok main_arg0 (by decide +kernel) (val335 V0)).trans (val335_main_arg0 V0)
theorem val336_main_arg1 (V0 : Valuation τ sig (Elt Ideal)) : val336 V0 (Proc.devRef .tc main_arg1) = aA V0 :=
  (after_keep _ 10 stepOps335_ok main_arg1 (by decide +kernel) (val335 V0)).trans (val335_main_arg1 V0)
theorem val336_main_arg2 (V0 : Valuation τ sig (Elt Ideal)) : val336 V0 (Proc.devRef .tc main_arg2) = aB V0 :=
  (after_keep _ 10 stepOps335_ok main_arg2 (by decide +kernel) (val335 V0)).trans (val335_main_arg2 V0)
theorem val336_main_arg3 (V0 : Valuation τ sig (Elt Ideal)) : val336 V0 (Proc.devRef .tc main_arg3) = aC V0 :=
  (after_keep _ 10 stepOps335_ok main_arg3 (by decide +kernel) (val335 V0)).trans (val335_main_arg3 V0)
theorem val336_main_v3 (V0 : Valuation τ sig (Elt Ideal)) : val336 V0 (Proc.devRef .tc main_v3) = decay (aA V0) :=
  (after_keep _ 10 stepOps335_ok main_v3 (by decide +kernel) (val335 V0)).trans (val335_main_v3 V0)
theorem val336_h (V0 : Valuation τ sig (Elt Ideal)) : val336 V0 (Proc.devRef .tc main_v6715) = hI (aX V0) (aA V0) (aB V0) 335 := by
  refine ((step335_val (val335 V0)).1).trans ?_
  rw [val335_main_arg0 V0, val335_main_v3 V0, val335_main_arg2 V0, val335_h V0]
  exact (hI_at (aX V0) (aA V0) (aB V0) 334 335 (by decide) rfl).symm
theorem val336_y (V0 : Valuation τ sig (Elt Ideal)) : val336 V0 (Proc.devRef .tc main_v6723) = yJ (aX V0) (aA V0) (aB V0) (aC V0) 336 := by
  refine ((step335_val (val335 V0)).2).trans ?_
  rw [val335_main_arg0 V0, val335_main_v3 V0, val335_main_arg2 V0, val335_main_arg3 V0, val335_h V0, val335_y V0]
  rw [← hI_at (aX V0) (aA V0) (aB V0) 334 335 (by decide) rfl]
  exact (yJ_at (aX V0) (aA V0) (aB V0) (aC V0) 335 336 (by decide) rfl).symm
/-- The contents after step 336. -/
def val337 (V0 : Valuation τ sig (Elt Ideal)) : Valuation τ sig (Elt Ideal) := after (stepOps336 (F := Ideal)) (val336 V0)
theorem val337_main_arg0 (V0 : Valuation τ sig (Elt Ideal)) : val337 V0 (Proc.devRef .tc main_arg0) = aX V0 :=
  (after_keep _ 10 stepOps336_ok main_arg0 (by decide +kernel) (val336 V0)).trans (val336_main_arg0 V0)
theorem val337_main_arg1 (V0 : Valuation τ sig (Elt Ideal)) : val337 V0 (Proc.devRef .tc main_arg1) = aA V0 :=
  (after_keep _ 10 stepOps336_ok main_arg1 (by decide +kernel) (val336 V0)).trans (val336_main_arg1 V0)
theorem val337_main_arg2 (V0 : Valuation τ sig (Elt Ideal)) : val337 V0 (Proc.devRef .tc main_arg2) = aB V0 :=
  (after_keep _ 10 stepOps336_ok main_arg2 (by decide +kernel) (val336 V0)).trans (val336_main_arg2 V0)
theorem val337_main_arg3 (V0 : Valuation τ sig (Elt Ideal)) : val337 V0 (Proc.devRef .tc main_arg3) = aC V0 :=
  (after_keep _ 10 stepOps336_ok main_arg3 (by decide +kernel) (val336 V0)).trans (val336_main_arg3 V0)
theorem val337_main_v3 (V0 : Valuation τ sig (Elt Ideal)) : val337 V0 (Proc.devRef .tc main_v3) = decay (aA V0) :=
  (after_keep _ 10 stepOps336_ok main_v3 (by decide +kernel) (val336 V0)).trans (val336_main_v3 V0)
theorem val337_h (V0 : Valuation τ sig (Elt Ideal)) : val337 V0 (Proc.devRef .tc main_v6735) = hI (aX V0) (aA V0) (aB V0) 336 := by
  refine ((step336_val (val336 V0)).1).trans ?_
  rw [val336_main_arg0 V0, val336_main_v3 V0, val336_main_arg2 V0, val336_h V0]
  exact (hI_at (aX V0) (aA V0) (aB V0) 335 336 (by decide) rfl).symm
theorem val337_y (V0 : Valuation τ sig (Elt Ideal)) : val337 V0 (Proc.devRef .tc main_v6743) = yJ (aX V0) (aA V0) (aB V0) (aC V0) 337 := by
  refine ((step336_val (val336 V0)).2).trans ?_
  rw [val336_main_arg0 V0, val336_main_v3 V0, val336_main_arg2 V0, val336_main_arg3 V0, val336_h V0, val336_y V0]
  rw [← hI_at (aX V0) (aA V0) (aB V0) 335 336 (by decide) rfl]
  exact (yJ_at (aX V0) (aA V0) (aB V0) (aC V0) 336 337 (by decide) rfl).symm
/-- The contents after step 337. -/
def val338 (V0 : Valuation τ sig (Elt Ideal)) : Valuation τ sig (Elt Ideal) := after (stepOps337 (F := Ideal)) (val337 V0)
theorem val338_main_arg0 (V0 : Valuation τ sig (Elt Ideal)) : val338 V0 (Proc.devRef .tc main_arg0) = aX V0 :=
  (after_keep _ 10 stepOps337_ok main_arg0 (by decide +kernel) (val337 V0)).trans (val337_main_arg0 V0)
theorem val338_main_arg1 (V0 : Valuation τ sig (Elt Ideal)) : val338 V0 (Proc.devRef .tc main_arg1) = aA V0 :=
  (after_keep _ 10 stepOps337_ok main_arg1 (by decide +kernel) (val337 V0)).trans (val337_main_arg1 V0)
theorem val338_main_arg2 (V0 : Valuation τ sig (Elt Ideal)) : val338 V0 (Proc.devRef .tc main_arg2) = aB V0 :=
  (after_keep _ 10 stepOps337_ok main_arg2 (by decide +kernel) (val337 V0)).trans (val337_main_arg2 V0)
theorem val338_main_arg3 (V0 : Valuation τ sig (Elt Ideal)) : val338 V0 (Proc.devRef .tc main_arg3) = aC V0 :=
  (after_keep _ 10 stepOps337_ok main_arg3 (by decide +kernel) (val337 V0)).trans (val337_main_arg3 V0)
theorem val338_main_v3 (V0 : Valuation τ sig (Elt Ideal)) : val338 V0 (Proc.devRef .tc main_v3) = decay (aA V0) :=
  (after_keep _ 10 stepOps337_ok main_v3 (by decide +kernel) (val337 V0)).trans (val337_main_v3 V0)
theorem val338_h (V0 : Valuation τ sig (Elt Ideal)) : val338 V0 (Proc.devRef .tc main_v6755) = hI (aX V0) (aA V0) (aB V0) 337 := by
  refine ((step337_val (val337 V0)).1).trans ?_
  rw [val337_main_arg0 V0, val337_main_v3 V0, val337_main_arg2 V0, val337_h V0]
  exact (hI_at (aX V0) (aA V0) (aB V0) 336 337 (by decide) rfl).symm
theorem val338_y (V0 : Valuation τ sig (Elt Ideal)) : val338 V0 (Proc.devRef .tc main_v6763) = yJ (aX V0) (aA V0) (aB V0) (aC V0) 338 := by
  refine ((step337_val (val337 V0)).2).trans ?_
  rw [val337_main_arg0 V0, val337_main_v3 V0, val337_main_arg2 V0, val337_main_arg3 V0, val337_h V0, val337_y V0]
  rw [← hI_at (aX V0) (aA V0) (aB V0) 336 337 (by decide) rfl]
  exact (yJ_at (aX V0) (aA V0) (aB V0) (aC V0) 337 338 (by decide) rfl).symm
/-- The contents after step 338. -/
def val339 (V0 : Valuation τ sig (Elt Ideal)) : Valuation τ sig (Elt Ideal) := after (stepOps338 (F := Ideal)) (val338 V0)
theorem val339_main_arg0 (V0 : Valuation τ sig (Elt Ideal)) : val339 V0 (Proc.devRef .tc main_arg0) = aX V0 :=
  (after_keep _ 10 stepOps338_ok main_arg0 (by decide +kernel) (val338 V0)).trans (val338_main_arg0 V0)
theorem val339_main_arg1 (V0 : Valuation τ sig (Elt Ideal)) : val339 V0 (Proc.devRef .tc main_arg1) = aA V0 :=
  (after_keep _ 10 stepOps338_ok main_arg1 (by decide +kernel) (val338 V0)).trans (val338_main_arg1 V0)
theorem val339_main_arg2 (V0 : Valuation τ sig (Elt Ideal)) : val339 V0 (Proc.devRef .tc main_arg2) = aB V0 :=
  (after_keep _ 10 stepOps338_ok main_arg2 (by decide +kernel) (val338 V0)).trans (val338_main_arg2 V0)
theorem val339_main_arg3 (V0 : Valuation τ sig (Elt Ideal)) : val339 V0 (Proc.devRef .tc main_arg3) = aC V0 :=
  (after_keep _ 10 stepOps338_ok main_arg3 (by decide +kernel) (val338 V0)).trans (val338_main_arg3 V0)
theorem val339_main_v3 (V0 : Valuation τ sig (Elt Ideal)) : val339 V0 (Proc.devRef .tc main_v3) = decay (aA V0) :=
  (after_keep _ 10 stepOps338_ok main_v3 (by decide +kernel) (val338 V0)).trans (val338_main_v3 V0)
theorem val339_h (V0 : Valuation τ sig (Elt Ideal)) : val339 V0 (Proc.devRef .tc main_v6775) = hI (aX V0) (aA V0) (aB V0) 338 := by
  refine ((step338_val (val338 V0)).1).trans ?_
  rw [val338_main_arg0 V0, val338_main_v3 V0, val338_main_arg2 V0, val338_h V0]
  exact (hI_at (aX V0) (aA V0) (aB V0) 337 338 (by decide) rfl).symm
theorem val339_y (V0 : Valuation τ sig (Elt Ideal)) : val339 V0 (Proc.devRef .tc main_v6783) = yJ (aX V0) (aA V0) (aB V0) (aC V0) 339 := by
  refine ((step338_val (val338 V0)).2).trans ?_
  rw [val338_main_arg0 V0, val338_main_v3 V0, val338_main_arg2 V0, val338_main_arg3 V0, val338_h V0, val338_y V0]
  rw [← hI_at (aX V0) (aA V0) (aB V0) 337 338 (by decide) rfl]
  exact (yJ_at (aX V0) (aA V0) (aB V0) (aC V0) 338 339 (by decide) rfl).symm
/-- The contents after step 339. -/
def val340 (V0 : Valuation τ sig (Elt Ideal)) : Valuation τ sig (Elt Ideal) := after (stepOps339 (F := Ideal)) (val339 V0)
theorem val340_main_arg0 (V0 : Valuation τ sig (Elt Ideal)) : val340 V0 (Proc.devRef .tc main_arg0) = aX V0 :=
  (after_keep _ 10 stepOps339_ok main_arg0 (by decide +kernel) (val339 V0)).trans (val339_main_arg0 V0)
theorem val340_main_arg1 (V0 : Valuation τ sig (Elt Ideal)) : val340 V0 (Proc.devRef .tc main_arg1) = aA V0 :=
  (after_keep _ 10 stepOps339_ok main_arg1 (by decide +kernel) (val339 V0)).trans (val339_main_arg1 V0)
theorem val340_main_arg2 (V0 : Valuation τ sig (Elt Ideal)) : val340 V0 (Proc.devRef .tc main_arg2) = aB V0 :=
  (after_keep _ 10 stepOps339_ok main_arg2 (by decide +kernel) (val339 V0)).trans (val339_main_arg2 V0)
theorem val340_main_arg3 (V0 : Valuation τ sig (Elt Ideal)) : val340 V0 (Proc.devRef .tc main_arg3) = aC V0 :=
  (after_keep _ 10 stepOps339_ok main_arg3 (by decide +kernel) (val339 V0)).trans (val339_main_arg3 V0)
theorem val340_main_v3 (V0 : Valuation τ sig (Elt Ideal)) : val340 V0 (Proc.devRef .tc main_v3) = decay (aA V0) :=
  (after_keep _ 10 stepOps339_ok main_v3 (by decide +kernel) (val339 V0)).trans (val339_main_v3 V0)
theorem val340_h (V0 : Valuation τ sig (Elt Ideal)) : val340 V0 (Proc.devRef .tc main_v6795) = hI (aX V0) (aA V0) (aB V0) 339 := by
  refine ((step339_val (val339 V0)).1).trans ?_
  rw [val339_main_arg0 V0, val339_main_v3 V0, val339_main_arg2 V0, val339_h V0]
  exact (hI_at (aX V0) (aA V0) (aB V0) 338 339 (by decide) rfl).symm
theorem val340_y (V0 : Valuation τ sig (Elt Ideal)) : val340 V0 (Proc.devRef .tc main_v6803) = yJ (aX V0) (aA V0) (aB V0) (aC V0) 340 := by
  refine ((step339_val (val339 V0)).2).trans ?_
  rw [val339_main_arg0 V0, val339_main_v3 V0, val339_main_arg2 V0, val339_main_arg3 V0, val339_h V0, val339_y V0]
  rw [← hI_at (aX V0) (aA V0) (aB V0) 338 339 (by decide) rfl]
  exact (yJ_at (aX V0) (aA V0) (aB V0) (aC V0) 339 340 (by decide) rfl).symm
/-- The contents after step 340. -/
def val341 (V0 : Valuation τ sig (Elt Ideal)) : Valuation τ sig (Elt Ideal) := after (stepOps340 (F := Ideal)) (val340 V0)
theorem val341_main_arg0 (V0 : Valuation τ sig (Elt Ideal)) : val341 V0 (Proc.devRef .tc main_arg0) = aX V0 :=
  (after_keep _ 10 stepOps340_ok main_arg0 (by decide +kernel) (val340 V0)).trans (val340_main_arg0 V0)
theorem val341_main_arg1 (V0 : Valuation τ sig (Elt Ideal)) : val341 V0 (Proc.devRef .tc main_arg1) = aA V0 :=
  (after_keep _ 10 stepOps340_ok main_arg1 (by decide +kernel) (val340 V0)).trans (val340_main_arg1 V0)
theorem val341_main_arg2 (V0 : Valuation τ sig (Elt Ideal)) : val341 V0 (Proc.devRef .tc main_arg2) = aB V0 :=
  (after_keep _ 10 stepOps340_ok main_arg2 (by decide +kernel) (val340 V0)).trans (val340_main_arg2 V0)
theorem val341_main_arg3 (V0 : Valuation τ sig (Elt Ideal)) : val341 V0 (Proc.devRef .tc main_arg3) = aC V0 :=
  (after_keep _ 10 stepOps340_ok main_arg3 (by decide +kernel) (val340 V0)).trans (val340_main_arg3 V0)
theorem val341_main_v3 (V0 : Valuation τ sig (Elt Ideal)) : val341 V0 (Proc.devRef .tc main_v3) = decay (aA V0) :=
  (after_keep _ 10 stepOps340_ok main_v3 (by decide +kernel) (val340 V0)).trans (val340_main_v3 V0)
theorem val341_h (V0 : Valuation τ sig (Elt Ideal)) : val341 V0 (Proc.devRef .tc main_v6815) = hI (aX V0) (aA V0) (aB V0) 340 := by
  refine ((step340_val (val340 V0)).1).trans ?_
  rw [val340_main_arg0 V0, val340_main_v3 V0, val340_main_arg2 V0, val340_h V0]
  exact (hI_at (aX V0) (aA V0) (aB V0) 339 340 (by decide) rfl).symm
theorem val341_y (V0 : Valuation τ sig (Elt Ideal)) : val341 V0 (Proc.devRef .tc main_v6823) = yJ (aX V0) (aA V0) (aB V0) (aC V0) 341 := by
  refine ((step340_val (val340 V0)).2).trans ?_
  rw [val340_main_arg0 V0, val340_main_v3 V0, val340_main_arg2 V0, val340_main_arg3 V0, val340_h V0, val340_y V0]
  rw [← hI_at (aX V0) (aA V0) (aB V0) 339 340 (by decide) rfl]
  exact (yJ_at (aX V0) (aA V0) (aB V0) (aC V0) 340 341 (by decide) rfl).symm
/-- The contents after step 341. -/
def val342 (V0 : Valuation τ sig (Elt Ideal)) : Valuation τ sig (Elt Ideal) := after (stepOps341 (F := Ideal)) (val341 V0)
theorem val342_main_arg0 (V0 : Valuation τ sig (Elt Ideal)) : val342 V0 (Proc.devRef .tc main_arg0) = aX V0 :=
  (after_keep _ 10 stepOps341_ok main_arg0 (by decide +kernel) (val341 V0)).trans (val341_main_arg0 V0)
theorem val342_main_arg1 (V0 : Valuation τ sig (Elt Ideal)) : val342 V0 (Proc.devRef .tc main_arg1) = aA V0 :=
  (after_keep _ 10 stepOps341_ok main_arg1 (by decide +kernel) (val341 V0)).trans (val341_main_arg1 V0)
theorem val342_main_arg2 (V0 : Valuation τ sig (Elt Ideal)) : val342 V0 (Proc.devRef .tc main_arg2) = aB V0 :=
  (after_keep _ 10 stepOps341_ok main_arg2 (by decide +kernel) (val341 V0)).trans (val341_main_arg2 V0)
theorem val342_main_arg3 (V0 : Valuation τ sig (Elt Ideal)) : val342 V0 (Proc.devRef .tc main_arg3) = aC V0 :=
  (after_keep _ 10 stepOps341_ok main_arg3 (by decide +kernel) (val341 V0)).trans (val341_main_arg3 V0)
theorem val342_main_v3 (V0 : Valuation τ sig (Elt Ideal)) : val342 V0 (Proc.devRef .tc main_v3) = decay (aA V0) :=
  (after_keep _ 10 stepOps341_ok main_v3 (by decide +kernel) (val341 V0)).trans (val341_main_v3 V0)
theorem val342_h (V0 : Valuation τ sig (Elt Ideal)) : val342 V0 (Proc.devRef .tc main_v6835) = hI (aX V0) (aA V0) (aB V0) 341 := by
  refine ((step341_val (val341 V0)).1).trans ?_
  rw [val341_main_arg0 V0, val341_main_v3 V0, val341_main_arg2 V0, val341_h V0]
  exact (hI_at (aX V0) (aA V0) (aB V0) 340 341 (by decide) rfl).symm
theorem val342_y (V0 : Valuation τ sig (Elt Ideal)) : val342 V0 (Proc.devRef .tc main_v6843) = yJ (aX V0) (aA V0) (aB V0) (aC V0) 342 := by
  refine ((step341_val (val341 V0)).2).trans ?_
  rw [val341_main_arg0 V0, val341_main_v3 V0, val341_main_arg2 V0, val341_main_arg3 V0, val341_h V0, val341_y V0]
  rw [← hI_at (aX V0) (aA V0) (aB V0) 340 341 (by decide) rfl]
  exact (yJ_at (aX V0) (aA V0) (aB V0) (aC V0) 341 342 (by decide) rfl).symm
/-- The contents after step 342. -/
def val343 (V0 : Valuation τ sig (Elt Ideal)) : Valuation τ sig (Elt Ideal) := after (stepOps342 (F := Ideal)) (val342 V0)
theorem val343_main_arg0 (V0 : Valuation τ sig (Elt Ideal)) : val343 V0 (Proc.devRef .tc main_arg0) = aX V0 :=
  (after_keep _ 10 stepOps342_ok main_arg0 (by decide +kernel) (val342 V0)).trans (val342_main_arg0 V0)
theorem val343_main_arg1 (V0 : Valuation τ sig (Elt Ideal)) : val343 V0 (Proc.devRef .tc main_arg1) = aA V0 :=
  (after_keep _ 10 stepOps342_ok main_arg1 (by decide +kernel) (val342 V0)).trans (val342_main_arg1 V0)
theorem val343_main_arg2 (V0 : Valuation τ sig (Elt Ideal)) : val343 V0 (Proc.devRef .tc main_arg2) = aB V0 :=
  (after_keep _ 10 stepOps342_ok main_arg2 (by decide +kernel) (val342 V0)).trans (val342_main_arg2 V0)
theorem val343_main_arg3 (V0 : Valuation τ sig (Elt Ideal)) : val343 V0 (Proc.devRef .tc main_arg3) = aC V0 :=
  (after_keep _ 10 stepOps342_ok main_arg3 (by decide +kernel) (val342 V0)).trans (val342_main_arg3 V0)
theorem val343_main_v3 (V0 : Valuation τ sig (Elt Ideal)) : val343 V0 (Proc.devRef .tc main_v3) = decay (aA V0) :=
  (after_keep _ 10 stepOps342_ok main_v3 (by decide +kernel) (val342 V0)).trans (val342_main_v3 V0)
theorem val343_h (V0 : Valuation τ sig (Elt Ideal)) : val343 V0 (Proc.devRef .tc main_v6855) = hI (aX V0) (aA V0) (aB V0) 342 := by
  refine ((step342_val (val342 V0)).1).trans ?_
  rw [val342_main_arg0 V0, val342_main_v3 V0, val342_main_arg2 V0, val342_h V0]
  exact (hI_at (aX V0) (aA V0) (aB V0) 341 342 (by decide) rfl).symm
theorem val343_y (V0 : Valuation τ sig (Elt Ideal)) : val343 V0 (Proc.devRef .tc main_v6863) = yJ (aX V0) (aA V0) (aB V0) (aC V0) 343 := by
  refine ((step342_val (val342 V0)).2).trans ?_
  rw [val342_main_arg0 V0, val342_main_v3 V0, val342_main_arg2 V0, val342_main_arg3 V0, val342_h V0, val342_y V0]
  rw [← hI_at (aX V0) (aA V0) (aB V0) 341 342 (by decide) rfl]
  exact (yJ_at (aX V0) (aA V0) (aB V0) (aC V0) 342 343 (by decide) rfl).symm
/-- The contents after step 343. -/
def val344 (V0 : Valuation τ sig (Elt Ideal)) : Valuation τ sig (Elt Ideal) := after (stepOps343 (F := Ideal)) (val343 V0)
theorem val344_main_arg0 (V0 : Valuation τ sig (Elt Ideal)) : val344 V0 (Proc.devRef .tc main_arg0) = aX V0 :=
  (after_keep _ 10 stepOps343_ok main_arg0 (by decide +kernel) (val343 V0)).trans (val343_main_arg0 V0)
theorem val344_main_arg1 (V0 : Valuation τ sig (Elt Ideal)) : val344 V0 (Proc.devRef .tc main_arg1) = aA V0 :=
  (after_keep _ 10 stepOps343_ok main_arg1 (by decide +kernel) (val343 V0)).trans (val343_main_arg1 V0)
theorem val344_main_arg2 (V0 : Valuation τ sig (Elt Ideal)) : val344 V0 (Proc.devRef .tc main_arg2) = aB V0 :=
  (after_keep _ 10 stepOps343_ok main_arg2 (by decide +kernel) (val343 V0)).trans (val343_main_arg2 V0)
theorem val344_main_arg3 (V0 : Valuation τ sig (Elt Ideal)) : val344 V0 (Proc.devRef .tc main_arg3) = aC V0 :=
  (after_keep _ 10 stepOps343_ok main_arg3 (by decide +kernel) (val343 V0)).trans (val343_main_arg3 V0)
theorem val344_main_v3 (V0 : Valuation τ sig (Elt Ideal)) : val344 V0 (Proc.devRef .tc main_v3) = decay (aA V0) :=
  (after_keep _ 10 stepOps343_ok main_v3 (by decide +kernel) (val343 V0)).trans (val343_main_v3 V0)
theorem val344_h (V0 : Valuation τ sig (Elt Ideal)) : val344 V0 (Proc.devRef .tc main_v6875) = hI (aX V0) (aA V0) (aB V0) 343 := by
  refine ((step343_val (val343 V0)).1).trans ?_
  rw [val343_main_arg0 V0, val343_main_v3 V0, val343_main_arg2 V0, val343_h V0]
  exact (hI_at (aX V0) (aA V0) (aB V0) 342 343 (by decide) rfl).symm
theorem val344_y (V0 : Valuation τ sig (Elt Ideal)) : val344 V0 (Proc.devRef .tc main_v6883) = yJ (aX V0) (aA V0) (aB V0) (aC V0) 344 := by
  refine ((step343_val (val343 V0)).2).trans ?_
  rw [val343_main_arg0 V0, val343_main_v3 V0, val343_main_arg2 V0, val343_main_arg3 V0, val343_h V0, val343_y V0]
  rw [← hI_at (aX V0) (aA V0) (aB V0) 342 343 (by decide) rfl]
  exact (yJ_at (aX V0) (aA V0) (aB V0) (aC V0) 343 344 (by decide) rfl).symm
/-- The contents after step 344. -/
def val345 (V0 : Valuation τ sig (Elt Ideal)) : Valuation τ sig (Elt Ideal) := after (stepOps344 (F := Ideal)) (val344 V0)
theorem val345_main_arg0 (V0 : Valuation τ sig (Elt Ideal)) : val345 V0 (Proc.devRef .tc main_arg0) = aX V0 :=
  (after_keep _ 10 stepOps344_ok main_arg0 (by decide +kernel) (val344 V0)).trans (val344_main_arg0 V0)
theorem val345_main_arg1 (V0 : Valuation τ sig (Elt Ideal)) : val345 V0 (Proc.devRef .tc main_arg1) = aA V0 :=
  (after_keep _ 10 stepOps344_ok main_arg1 (by decide +kernel) (val344 V0)).trans (val344_main_arg1 V0)
theorem val345_main_arg2 (V0 : Valuation τ sig (Elt Ideal)) : val345 V0 (Proc.devRef .tc main_arg2) = aB V0 :=
  (after_keep _ 10 stepOps344_ok main_arg2 (by decide +kernel) (val344 V0)).trans (val344_main_arg2 V0)
theorem val345_main_arg3 (V0 : Valuation τ sig (Elt Ideal)) : val345 V0 (Proc.devRef .tc main_arg3) = aC V0 :=
  (after_keep _ 10 stepOps344_ok main_arg3 (by decide +kernel) (val344 V0)).trans (val344_main_arg3 V0)
theorem val345_main_v3 (V0 : Valuation τ sig (Elt Ideal)) : val345 V0 (Proc.devRef .tc main_v3) = decay (aA V0) :=
  (after_keep _ 10 stepOps344_ok main_v3 (by decide +kernel) (val344 V0)).trans (val344_main_v3 V0)
theorem val345_h (V0 : Valuation τ sig (Elt Ideal)) : val345 V0 (Proc.devRef .tc main_v6895) = hI (aX V0) (aA V0) (aB V0) 344 := by
  refine ((step344_val (val344 V0)).1).trans ?_
  rw [val344_main_arg0 V0, val344_main_v3 V0, val344_main_arg2 V0, val344_h V0]
  exact (hI_at (aX V0) (aA V0) (aB V0) 343 344 (by decide) rfl).symm
theorem val345_y (V0 : Valuation τ sig (Elt Ideal)) : val345 V0 (Proc.devRef .tc main_v6903) = yJ (aX V0) (aA V0) (aB V0) (aC V0) 345 := by
  refine ((step344_val (val344 V0)).2).trans ?_
  rw [val344_main_arg0 V0, val344_main_v3 V0, val344_main_arg2 V0, val344_main_arg3 V0, val344_h V0, val344_y V0]
  rw [← hI_at (aX V0) (aA V0) (aB V0) 343 344 (by decide) rfl]
  exact (yJ_at (aX V0) (aA V0) (aB V0) (aC V0) 344 345 (by decide) rfl).symm
/-- The contents after step 345. -/
def val346 (V0 : Valuation τ sig (Elt Ideal)) : Valuation τ sig (Elt Ideal) := after (stepOps345 (F := Ideal)) (val345 V0)
theorem val346_main_arg0 (V0 : Valuation τ sig (Elt Ideal)) : val346 V0 (Proc.devRef .tc main_arg0) = aX V0 :=
  (after_keep _ 10 stepOps345_ok main_arg0 (by decide +kernel) (val345 V0)).trans (val345_main_arg0 V0)
theorem val346_main_arg1 (V0 : Valuation τ sig (Elt Ideal)) : val346 V0 (Proc.devRef .tc main_arg1) = aA V0 :=
  (after_keep _ 10 stepOps345_ok main_arg1 (by decide +kernel) (val345 V0)).trans (val345_main_arg1 V0)
theorem val346_main_arg2 (V0 : Valuation τ sig (Elt Ideal)) : val346 V0 (Proc.devRef .tc main_arg2) = aB V0 :=
  (after_keep _ 10 stepOps345_ok main_arg2 (by decide +kernel) (val345 V0)).trans (val345_main_arg2 V0)
theorem val346_main_arg3 (V0 : Valuation τ sig (Elt Ideal)) : val346 V0 (Proc.devRef .tc main_arg3) = aC V0 :=
  (after_keep _ 10 stepOps345_ok main_arg3 (by decide +kernel) (val345 V0)).trans (val345_main_arg3 V0)
theorem val346_main_v3 (V0 : Valuation τ sig (Elt Ideal)) : val346 V0 (Proc.devRef .tc main_v3) = decay (aA V0) :=
  (after_keep _ 10 stepOps345_ok main_v3 (by decide +kernel) (val345 V0)).trans (val345_main_v3 V0)
theorem val346_h (V0 : Valuation τ sig (Elt Ideal)) : val346 V0 (Proc.devRef .tc main_v6915) = hI (aX V0) (aA V0) (aB V0) 345 := by
  refine ((step345_val (val345 V0)).1).trans ?_
  rw [val345_main_arg0 V0, val345_main_v3 V0, val345_main_arg2 V0, val345_h V0]
  exact (hI_at (aX V0) (aA V0) (aB V0) 344 345 (by decide) rfl).symm
theorem val346_y (V0 : Valuation τ sig (Elt Ideal)) : val346 V0 (Proc.devRef .tc main_v6923) = yJ (aX V0) (aA V0) (aB V0) (aC V0) 346 := by
  refine ((step345_val (val345 V0)).2).trans ?_
  rw [val345_main_arg0 V0, val345_main_v3 V0, val345_main_arg2 V0, val345_main_arg3 V0, val345_h V0, val345_y V0]
  rw [← hI_at (aX V0) (aA V0) (aB V0) 344 345 (by decide) rfl]
  exact (yJ_at (aX V0) (aA V0) (aB V0) (aC V0) 345 346 (by decide) rfl).symm
/-- The contents after step 346. -/
def val347 (V0 : Valuation τ sig (Elt Ideal)) : Valuation τ sig (Elt Ideal) := after (stepOps346 (F := Ideal)) (val346 V0)
theorem val347_main_arg0 (V0 : Valuation τ sig (Elt Ideal)) : val347 V0 (Proc.devRef .tc main_arg0) = aX V0 :=
  (after_keep _ 10 stepOps346_ok main_arg0 (by decide +kernel) (val346 V0)).trans (val346_main_arg0 V0)
theorem val347_main_arg1 (V0 : Valuation τ sig (Elt Ideal)) : val347 V0 (Proc.devRef .tc main_arg1) = aA V0 :=
  (after_keep _ 10 stepOps346_ok main_arg1 (by decide +kernel) (val346 V0)).trans (val346_main_arg1 V0)
theorem val347_main_arg2 (V0 : Valuation τ sig (Elt Ideal)) : val347 V0 (Proc.devRef .tc main_arg2) = aB V0 :=
  (after_keep _ 10 stepOps346_ok main_arg2 (by decide +kernel) (val346 V0)).trans (val346_main_arg2 V0)
theorem val347_main_arg3 (V0 : Valuation τ sig (Elt Ideal)) : val347 V0 (Proc.devRef .tc main_arg3) = aC V0 :=
  (after_keep _ 10 stepOps346_ok main_arg3 (by decide +kernel) (val346 V0)).trans (val346_main_arg3 V0)
theorem val347_main_v3 (V0 : Valuation τ sig (Elt Ideal)) : val347 V0 (Proc.devRef .tc main_v3) = decay (aA V0) :=
  (after_keep _ 10 stepOps346_ok main_v3 (by decide +kernel) (val346 V0)).trans (val346_main_v3 V0)
theorem val347_h (V0 : Valuation τ sig (Elt Ideal)) : val347 V0 (Proc.devRef .tc main_v6935) = hI (aX V0) (aA V0) (aB V0) 346 := by
  refine ((step346_val (val346 V0)).1).trans ?_
  rw [val346_main_arg0 V0, val346_main_v3 V0, val346_main_arg2 V0, val346_h V0]
  exact (hI_at (aX V0) (aA V0) (aB V0) 345 346 (by decide) rfl).symm
theorem val347_y (V0 : Valuation τ sig (Elt Ideal)) : val347 V0 (Proc.devRef .tc main_v6943) = yJ (aX V0) (aA V0) (aB V0) (aC V0) 347 := by
  refine ((step346_val (val346 V0)).2).trans ?_
  rw [val346_main_arg0 V0, val346_main_v3 V0, val346_main_arg2 V0, val346_main_arg3 V0, val346_h V0, val346_y V0]
  rw [← hI_at (aX V0) (aA V0) (aB V0) 345 346 (by decide) rfl]
  exact (yJ_at (aX V0) (aA V0) (aB V0) (aC V0) 346 347 (by decide) rfl).symm
/-- The contents after step 347. -/
def val348 (V0 : Valuation τ sig (Elt Ideal)) : Valuation τ sig (Elt Ideal) := after (stepOps347 (F := Ideal)) (val347 V0)
theorem val348_main_arg0 (V0 : Valuation τ sig (Elt Ideal)) : val348 V0 (Proc.devRef .tc main_arg0) = aX V0 :=
  (after_keep _ 10 stepOps347_ok main_arg0 (by decide +kernel) (val347 V0)).trans (val347_main_arg0 V0)
theorem val348_main_arg1 (V0 : Valuation τ sig (Elt Ideal)) : val348 V0 (Proc.devRef .tc main_arg1) = aA V0 :=
  (after_keep _ 10 stepOps347_ok main_arg1 (by decide +kernel) (val347 V0)).trans (val347_main_arg1 V0)
theorem val348_main_arg2 (V0 : Valuation τ sig (Elt Ideal)) : val348 V0 (Proc.devRef .tc main_arg2) = aB V0 :=
  (after_keep _ 10 stepOps347_ok main_arg2 (by decide +kernel) (val347 V0)).trans (val347_main_arg2 V0)
theorem val348_main_arg3 (V0 : Valuation τ sig (Elt Ideal)) : val348 V0 (Proc.devRef .tc main_arg3) = aC V0 :=
  (after_keep _ 10 stepOps347_ok main_arg3 (by decide +kernel) (val347 V0)).trans (val347_main_arg3 V0)
theorem val348_main_v3 (V0 : Valuation τ sig (Elt Ideal)) : val348 V0 (Proc.devRef .tc main_v3) = decay (aA V0) :=
  (after_keep _ 10 stepOps347_ok main_v3 (by decide +kernel) (val347 V0)).trans (val347_main_v3 V0)
theorem val348_h (V0 : Valuation τ sig (Elt Ideal)) : val348 V0 (Proc.devRef .tc main_v6955) = hI (aX V0) (aA V0) (aB V0) 347 := by
  refine ((step347_val (val347 V0)).1).trans ?_
  rw [val347_main_arg0 V0, val347_main_v3 V0, val347_main_arg2 V0, val347_h V0]
  exact (hI_at (aX V0) (aA V0) (aB V0) 346 347 (by decide) rfl).symm
theorem val348_y (V0 : Valuation τ sig (Elt Ideal)) : val348 V0 (Proc.devRef .tc main_v6963) = yJ (aX V0) (aA V0) (aB V0) (aC V0) 348 := by
  refine ((step347_val (val347 V0)).2).trans ?_
  rw [val347_main_arg0 V0, val347_main_v3 V0, val347_main_arg2 V0, val347_main_arg3 V0, val347_h V0, val347_y V0]
  rw [← hI_at (aX V0) (aA V0) (aB V0) 346 347 (by decide) rfl]
  exact (yJ_at (aX V0) (aA V0) (aB V0) (aC V0) 347 348 (by decide) rfl).symm
/-- The contents after step 348. -/
def val349 (V0 : Valuation τ sig (Elt Ideal)) : Valuation τ sig (Elt Ideal) := after (stepOps348 (F := Ideal)) (val348 V0)
theorem val349_main_arg0 (V0 : Valuation τ sig (Elt Ideal)) : val349 V0 (Proc.devRef .tc main_arg0) = aX V0 :=
  (after_keep _ 10 stepOps348_ok main_arg0 (by decide +kernel) (val348 V0)).trans (val348_main_arg0 V0)
theorem val349_main_arg1 (V0 : Valuation τ sig (Elt Ideal)) : val349 V0 (Proc.devRef .tc main_arg1) = aA V0 :=
  (after_keep _ 10 stepOps348_ok main_arg1 (by decide +kernel) (val348 V0)).trans (val348_main_arg1 V0)
theorem val349_main_arg2 (V0 : Valuation τ sig (Elt Ideal)) : val349 V0 (Proc.devRef .tc main_arg2) = aB V0 :=
  (after_keep _ 10 stepOps348_ok main_arg2 (by decide +kernel) (val348 V0)).trans (val348_main_arg2 V0)
theorem val349_main_arg3 (V0 : Valuation τ sig (Elt Ideal)) : val349 V0 (Proc.devRef .tc main_arg3) = aC V0 :=
  (after_keep _ 10 stepOps348_ok main_arg3 (by decide +kernel) (val348 V0)).trans (val348_main_arg3 V0)
theorem val349_main_v3 (V0 : Valuation τ sig (Elt Ideal)) : val349 V0 (Proc.devRef .tc main_v3) = decay (aA V0) :=
  (after_keep _ 10 stepOps348_ok main_v3 (by decide +kernel) (val348 V0)).trans (val348_main_v3 V0)
theorem val349_h (V0 : Valuation τ sig (Elt Ideal)) : val349 V0 (Proc.devRef .tc main_v6975) = hI (aX V0) (aA V0) (aB V0) 348 := by
  refine ((step348_val (val348 V0)).1).trans ?_
  rw [val348_main_arg0 V0, val348_main_v3 V0, val348_main_arg2 V0, val348_h V0]
  exact (hI_at (aX V0) (aA V0) (aB V0) 347 348 (by decide) rfl).symm
theorem val349_y (V0 : Valuation τ sig (Elt Ideal)) : val349 V0 (Proc.devRef .tc main_v6983) = yJ (aX V0) (aA V0) (aB V0) (aC V0) 349 := by
  refine ((step348_val (val348 V0)).2).trans ?_
  rw [val348_main_arg0 V0, val348_main_v3 V0, val348_main_arg2 V0, val348_main_arg3 V0, val348_h V0, val348_y V0]
  rw [← hI_at (aX V0) (aA V0) (aB V0) 347 348 (by decide) rfl]
  exact (yJ_at (aX V0) (aA V0) (aB V0) (aC V0) 348 349 (by decide) rfl).symm
/-- The contents after step 349. -/
def val350 (V0 : Valuation τ sig (Elt Ideal)) : Valuation τ sig (Elt Ideal) := after (stepOps349 (F := Ideal)) (val349 V0)
theorem val350_main_arg0 (V0 : Valuation τ sig (Elt Ideal)) : val350 V0 (Proc.devRef .tc main_arg0) = aX V0 :=
  (after_keep _ 10 stepOps349_ok main_arg0 (by decide +kernel) (val349 V0)).trans (val349_main_arg0 V0)
theorem val350_main_arg1 (V0 : Valuation τ sig (Elt Ideal)) : val350 V0 (Proc.devRef .tc main_arg1) = aA V0 :=
  (after_keep _ 10 stepOps349_ok main_arg1 (by decide +kernel) (val349 V0)).trans (val349_main_arg1 V0)
theorem val350_main_arg2 (V0 : Valuation τ sig (Elt Ideal)) : val350 V0 (Proc.devRef .tc main_arg2) = aB V0 :=
  (after_keep _ 10 stepOps349_ok main_arg2 (by decide +kernel) (val349 V0)).trans (val349_main_arg2 V0)
theorem val350_main_arg3 (V0 : Valuation τ sig (Elt Ideal)) : val350 V0 (Proc.devRef .tc main_arg3) = aC V0 :=
  (after_keep _ 10 stepOps349_ok main_arg3 (by decide +kernel) (val349 V0)).trans (val349_main_arg3 V0)
theorem val350_main_v3 (V0 : Valuation τ sig (Elt Ideal)) : val350 V0 (Proc.devRef .tc main_v3) = decay (aA V0) :=
  (after_keep _ 10 stepOps349_ok main_v3 (by decide +kernel) (val349 V0)).trans (val349_main_v3 V0)
theorem val350_h (V0 : Valuation τ sig (Elt Ideal)) : val350 V0 (Proc.devRef .tc main_v6995) = hI (aX V0) (aA V0) (aB V0) 349 := by
  refine ((step349_val (val349 V0)).1).trans ?_
  rw [val349_main_arg0 V0, val349_main_v3 V0, val349_main_arg2 V0, val349_h V0]
  exact (hI_at (aX V0) (aA V0) (aB V0) 348 349 (by decide) rfl).symm
theorem val350_y (V0 : Valuation τ sig (Elt Ideal)) : val350 V0 (Proc.devRef .tc main_v7003) = yJ (aX V0) (aA V0) (aB V0) (aC V0) 350 := by
  refine ((step349_val (val349 V0)).2).trans ?_
  rw [val349_main_arg0 V0, val349_main_v3 V0, val349_main_arg2 V0, val349_main_arg3 V0, val349_h V0, val349_y V0]
  rw [← hI_at (aX V0) (aA V0) (aB V0) 348 349 (by decide) rfl]
  exact (yJ_at (aX V0) (aA V0) (aB V0) (aC V0) 349 350 (by decide) rfl).symm
/-- The contents after step 350. -/
def val351 (V0 : Valuation τ sig (Elt Ideal)) : Valuation τ sig (Elt Ideal) := after (stepOps350 (F := Ideal)) (val350 V0)
theorem val351_main_arg0 (V0 : Valuation τ sig (Elt Ideal)) : val351 V0 (Proc.devRef .tc main_arg0) = aX V0 :=
  (after_keep _ 10 stepOps350_ok main_arg0 (by decide +kernel) (val350 V0)).trans (val350_main_arg0 V0)
theorem val351_main_arg1 (V0 : Valuation τ sig (Elt Ideal)) : val351 V0 (Proc.devRef .tc main_arg1) = aA V0 :=
  (after_keep _ 10 stepOps350_ok main_arg1 (by decide +kernel) (val350 V0)).trans (val350_main_arg1 V0)
theorem val351_main_arg2 (V0 : Valuation τ sig (Elt Ideal)) : val351 V0 (Proc.devRef .tc main_arg2) = aB V0 :=
  (after_keep _ 10 stepOps350_ok main_arg2 (by decide +kernel) (val350 V0)).trans (val350_main_arg2 V0)
theorem val351_main_arg3 (V0 : Valuation τ sig (Elt Ideal)) : val351 V0 (Proc.devRef .tc main_arg3) = aC V0 :=
  (after_keep _ 10 stepOps350_ok main_arg3 (by decide +kernel) (val350 V0)).trans (val350_main_arg3 V0)
theorem val351_main_v3 (V0 : Valuation τ sig (Elt Ideal)) : val351 V0 (Proc.devRef .tc main_v3) = decay (aA V0) :=
  (after_keep _ 10 stepOps350_ok main_v3 (by decide +kernel) (val350 V0)).trans (val350_main_v3 V0)
theorem val351_h (V0 : Valuation τ sig (Elt Ideal)) : val351 V0 (Proc.devRef .tc main_v7015) = hI (aX V0) (aA V0) (aB V0) 350 := by
  refine ((step350_val (val350 V0)).1).trans ?_
  rw [val350_main_arg0 V0, val350_main_v3 V0, val350_main_arg2 V0, val350_h V0]
  exact (hI_at (aX V0) (aA V0) (aB V0) 349 350 (by decide) rfl).symm
theorem val351_y (V0 : Valuation τ sig (Elt Ideal)) : val351 V0 (Proc.devRef .tc main_v7023) = yJ (aX V0) (aA V0) (aB V0) (aC V0) 351 := by
  refine ((step350_val (val350 V0)).2).trans ?_
  rw [val350_main_arg0 V0, val350_main_v3 V0, val350_main_arg2 V0, val350_main_arg3 V0, val350_h V0, val350_y V0]
  rw [← hI_at (aX V0) (aA V0) (aB V0) 349 350 (by decide) rfl]
  exact (yJ_at (aX V0) (aA V0) (aB V0) (aC V0) 350 351 (by decide) rfl).symm
/-- The contents after step 351. -/
def val352 (V0 : Valuation τ sig (Elt Ideal)) : Valuation τ sig (Elt Ideal) := after (stepOps351 (F := Ideal)) (val351 V0)
theorem val352_main_arg0 (V0 : Valuation τ sig (Elt Ideal)) : val352 V0 (Proc.devRef .tc main_arg0) = aX V0 :=
  (after_keep _ 10 stepOps351_ok main_arg0 (by decide +kernel) (val351 V0)).trans (val351_main_arg0 V0)
theorem val352_main_arg1 (V0 : Valuation τ sig (Elt Ideal)) : val352 V0 (Proc.devRef .tc main_arg1) = aA V0 :=
  (after_keep _ 10 stepOps351_ok main_arg1 (by decide +kernel) (val351 V0)).trans (val351_main_arg1 V0)
theorem val352_main_arg2 (V0 : Valuation τ sig (Elt Ideal)) : val352 V0 (Proc.devRef .tc main_arg2) = aB V0 :=
  (after_keep _ 10 stepOps351_ok main_arg2 (by decide +kernel) (val351 V0)).trans (val351_main_arg2 V0)
theorem val352_main_arg3 (V0 : Valuation τ sig (Elt Ideal)) : val352 V0 (Proc.devRef .tc main_arg3) = aC V0 :=
  (after_keep _ 10 stepOps351_ok main_arg3 (by decide +kernel) (val351 V0)).trans (val351_main_arg3 V0)
theorem val352_main_v3 (V0 : Valuation τ sig (Elt Ideal)) : val352 V0 (Proc.devRef .tc main_v3) = decay (aA V0) :=
  (after_keep _ 10 stepOps351_ok main_v3 (by decide +kernel) (val351 V0)).trans (val351_main_v3 V0)
theorem val352_h (V0 : Valuation τ sig (Elt Ideal)) : val352 V0 (Proc.devRef .tc main_v7035) = hI (aX V0) (aA V0) (aB V0) 351 := by
  refine ((step351_val (val351 V0)).1).trans ?_
  rw [val351_main_arg0 V0, val351_main_v3 V0, val351_main_arg2 V0, val351_h V0]
  exact (hI_at (aX V0) (aA V0) (aB V0) 350 351 (by decide) rfl).symm
theorem val352_y (V0 : Valuation τ sig (Elt Ideal)) : val352 V0 (Proc.devRef .tc main_v7043) = yJ (aX V0) (aA V0) (aB V0) (aC V0) 352 := by
  refine ((step351_val (val351 V0)).2).trans ?_
  rw [val351_main_arg0 V0, val351_main_v3 V0, val351_main_arg2 V0, val351_main_arg3 V0, val351_h V0, val351_y V0]
  rw [← hI_at (aX V0) (aA V0) (aB V0) 350 351 (by decide) rfl]
  exact (yJ_at (aX V0) (aA V0) (aB V0) (aC V0) 351 352 (by decide) rfl).symm
/-- The contents after step 352. -/
def val353 (V0 : Valuation τ sig (Elt Ideal)) : Valuation τ sig (Elt Ideal) := after (stepOps352 (F := Ideal)) (val352 V0)
theorem val353_main_arg0 (V0 : Valuation τ sig (Elt Ideal)) : val353 V0 (Proc.devRef .tc main_arg0) = aX V0 :=
  (after_keep _ 10 stepOps352_ok main_arg0 (by decide +kernel) (val352 V0)).trans (val352_main_arg0 V0)
theorem val353_main_arg1 (V0 : Valuation τ sig (Elt Ideal)) : val353 V0 (Proc.devRef .tc main_arg1) = aA V0 :=
  (after_keep _ 10 stepOps352_ok main_arg1 (by decide +kernel) (val352 V0)).trans (val352_main_arg1 V0)
theorem val353_main_arg2 (V0 : Valuation τ sig (Elt Ideal)) : val353 V0 (Proc.devRef .tc main_arg2) = aB V0 :=
  (after_keep _ 10 stepOps352_ok main_arg2 (by decide +kernel) (val352 V0)).trans (val352_main_arg2 V0)
theorem val353_main_arg3 (V0 : Valuation τ sig (Elt Ideal)) : val353 V0 (Proc.devRef .tc main_arg3) = aC V0 :=
  (after_keep _ 10 stepOps352_ok main_arg3 (by decide +kernel) (val352 V0)).trans (val352_main_arg3 V0)
theorem val353_main_v3 (V0 : Valuation τ sig (Elt Ideal)) : val353 V0 (Proc.devRef .tc main_v3) = decay (aA V0) :=
  (after_keep _ 10 stepOps352_ok main_v3 (by decide +kernel) (val352 V0)).trans (val352_main_v3 V0)
theorem val353_h (V0 : Valuation τ sig (Elt Ideal)) : val353 V0 (Proc.devRef .tc main_v7055) = hI (aX V0) (aA V0) (aB V0) 352 := by
  refine ((step352_val (val352 V0)).1).trans ?_
  rw [val352_main_arg0 V0, val352_main_v3 V0, val352_main_arg2 V0, val352_h V0]
  exact (hI_at (aX V0) (aA V0) (aB V0) 351 352 (by decide) rfl).symm
theorem val353_y (V0 : Valuation τ sig (Elt Ideal)) : val353 V0 (Proc.devRef .tc main_v7063) = yJ (aX V0) (aA V0) (aB V0) (aC V0) 353 := by
  refine ((step352_val (val352 V0)).2).trans ?_
  rw [val352_main_arg0 V0, val352_main_v3 V0, val352_main_arg2 V0, val352_main_arg3 V0, val352_h V0, val352_y V0]
  rw [← hI_at (aX V0) (aA V0) (aB V0) 351 352 (by decide) rfl]
  exact (yJ_at (aX V0) (aA V0) (aB V0) (aC V0) 352 353 (by decide) rfl).symm
/-- The contents after step 353. -/
def val354 (V0 : Valuation τ sig (Elt Ideal)) : Valuation τ sig (Elt Ideal) := after (stepOps353 (F := Ideal)) (val353 V0)
theorem val354_main_arg0 (V0 : Valuation τ sig (Elt Ideal)) : val354 V0 (Proc.devRef .tc main_arg0) = aX V0 :=
  (after_keep _ 10 stepOps353_ok main_arg0 (by decide +kernel) (val353 V0)).trans (val353_main_arg0 V0)
theorem val354_main_arg1 (V0 : Valuation τ sig (Elt Ideal)) : val354 V0 (Proc.devRef .tc main_arg1) = aA V0 :=
  (after_keep _ 10 stepOps353_ok main_arg1 (by decide +kernel) (val353 V0)).trans (val353_main_arg1 V0)
theorem val354_main_arg2 (V0 : Valuation τ sig (Elt Ideal)) : val354 V0 (Proc.devRef .tc main_arg2) = aB V0 :=
  (after_keep _ 10 stepOps353_ok main_arg2 (by decide +kernel) (val353 V0)).trans (val353_main_arg2 V0)
theorem val354_main_arg3 (V0 : Valuation τ sig (Elt Ideal)) : val354 V0 (Proc.devRef .tc main_arg3) = aC V0 :=
  (after_keep _ 10 stepOps353_ok main_arg3 (by decide +kernel) (val353 V0)).trans (val353_main_arg3 V0)
theorem val354_main_v3 (V0 : Valuation τ sig (Elt Ideal)) : val354 V0 (Proc.devRef .tc main_v3) = decay (aA V0) :=
  (after_keep _ 10 stepOps353_ok main_v3 (by decide +kernel) (val353 V0)).trans (val353_main_v3 V0)
theorem val354_h (V0 : Valuation τ sig (Elt Ideal)) : val354 V0 (Proc.devRef .tc main_v7075) = hI (aX V0) (aA V0) (aB V0) 353 := by
  refine ((step353_val (val353 V0)).1).trans ?_
  rw [val353_main_arg0 V0, val353_main_v3 V0, val353_main_arg2 V0, val353_h V0]
  exact (hI_at (aX V0) (aA V0) (aB V0) 352 353 (by decide) rfl).symm
theorem val354_y (V0 : Valuation τ sig (Elt Ideal)) : val354 V0 (Proc.devRef .tc main_v7083) = yJ (aX V0) (aA V0) (aB V0) (aC V0) 354 := by
  refine ((step353_val (val353 V0)).2).trans ?_
  rw [val353_main_arg0 V0, val353_main_v3 V0, val353_main_arg2 V0, val353_main_arg3 V0, val353_h V0, val353_y V0]
  rw [← hI_at (aX V0) (aA V0) (aB V0) 352 353 (by decide) rfl]
  exact (yJ_at (aX V0) (aA V0) (aB V0) (aC V0) 353 354 (by decide) rfl).symm
/-- The contents after step 354. -/
def val355 (V0 : Valuation τ sig (Elt Ideal)) : Valuation τ sig (Elt Ideal) := after (stepOps354 (F := Ideal)) (val354 V0)
theorem val355_main_arg0 (V0 : Valuation τ sig (Elt Ideal)) : val355 V0 (Proc.devRef .tc main_arg0) = aX V0 :=
  (after_keep _ 10 stepOps354_ok main_arg0 (by decide +kernel) (val354 V0)).trans (val354_main_arg0 V0)
theorem val355_main_arg1 (V0 : Valuation τ sig (Elt Ideal)) : val355 V0 (Proc.devRef .tc main_arg1) = aA V0 :=
  (after_keep _ 10 stepOps354_ok main_arg1 (by decide +kernel) (val354 V0)).trans (val354_main_arg1 V0)
theorem val355_main_arg2 (V0 : Valuation τ sig (Elt Ideal)) : val355 V0 (Proc.devRef .tc main_arg2) = aB V0 :=
  (after_keep _ 10 stepOps354_ok main_arg2 (by decide +kernel) (val354 V0)).trans (val354_main_arg2 V0)
theorem val355_main_arg3 (V0 : Valuation τ sig (Elt Ideal)) : val355 V0 (Proc.devRef .tc main_arg3) = aC V0 :=
  (after_keep _ 10 stepOps354_ok main_arg3 (by decide +kernel) (val354 V0)).trans (val354_main_arg3 V0)
theorem val355_main_v3 (V0 : Valuation τ sig (Elt Ideal)) : val355 V0 (Proc.devRef .tc main_v3) = decay (aA V0) :=
  (after_keep _ 10 stepOps354_ok main_v3 (by decide +kernel) (val354 V0)).trans (val354_main_v3 V0)
theorem val355_h (V0 : Valuation τ sig (Elt Ideal)) : val355 V0 (Proc.devRef .tc main_v7095) = hI (aX V0) (aA V0) (aB V0) 354 := by
  refine ((step354_val (val354 V0)).1).trans ?_
  rw [val354_main_arg0 V0, val354_main_v3 V0, val354_main_arg2 V0, val354_h V0]
  exact (hI_at (aX V0) (aA V0) (aB V0) 353 354 (by decide) rfl).symm
theorem val355_y (V0 : Valuation τ sig (Elt Ideal)) : val355 V0 (Proc.devRef .tc main_v7103) = yJ (aX V0) (aA V0) (aB V0) (aC V0) 355 := by
  refine ((step354_val (val354 V0)).2).trans ?_
  rw [val354_main_arg0 V0, val354_main_v3 V0, val354_main_arg2 V0, val354_main_arg3 V0, val354_h V0, val354_y V0]
  rw [← hI_at (aX V0) (aA V0) (aB V0) 353 354 (by decide) rfl]
  exact (yJ_at (aX V0) (aA V0) (aB V0) (aC V0) 354 355 (by decide) rfl).symm
/-- The contents after step 355. -/
def val356 (V0 : Valuation τ sig (Elt Ideal)) : Valuation τ sig (Elt Ideal) := after (stepOps355 (F := Ideal)) (val355 V0)
theorem val356_main_arg0 (V0 : Valuation τ sig (Elt Ideal)) : val356 V0 (Proc.devRef .tc main_arg0) = aX V0 :=
  (after_keep _ 10 stepOps355_ok main_arg0 (by decide +kernel) (val355 V0)).trans (val355_main_arg0 V0)
theorem val356_main_arg1 (V0 : Valuation τ sig (Elt Ideal)) : val356 V0 (Proc.devRef .tc main_arg1) = aA V0 :=
  (after_keep _ 10 stepOps355_ok main_arg1 (by decide +kernel) (val355 V0)).trans (val355_main_arg1 V0)
theorem val356_main_arg2 (V0 : Valuation τ sig (Elt Ideal)) : val356 V0 (Proc.devRef .tc main_arg2) = aB V0 :=
  (after_keep _ 10 stepOps355_ok main_arg2 (by decide +kernel) (val355 V0)).trans (val355_main_arg2 V0)
theorem val356_main_arg3 (V0 : Valuation τ sig (Elt Ideal)) : val356 V0 (Proc.devRef .tc main_arg3) = aC V0 :=
  (after_keep _ 10 stepOps355_ok main_arg3 (by decide +kernel) (val355 V0)).trans (val355_main_arg3 V0)
theorem val356_main_v3 (V0 : Valuation τ sig (Elt Ideal)) : val356 V0 (Proc.devRef .tc main_v3) = decay (aA V0) :=
  (after_keep _ 10 stepOps355_ok main_v3 (by decide +kernel) (val355 V0)).trans (val355_main_v3 V0)
theorem val356_h (V0 : Valuation τ sig (Elt Ideal)) : val356 V0 (Proc.devRef .tc main_v7115) = hI (aX V0) (aA V0) (aB V0) 355 := by
  refine ((step355_val (val355 V0)).1).trans ?_
  rw [val355_main_arg0 V0, val355_main_v3 V0, val355_main_arg2 V0, val355_h V0]
  exact (hI_at (aX V0) (aA V0) (aB V0) 354 355 (by decide) rfl).symm
theorem val356_y (V0 : Valuation τ sig (Elt Ideal)) : val356 V0 (Proc.devRef .tc main_v7123) = yJ (aX V0) (aA V0) (aB V0) (aC V0) 356 := by
  refine ((step355_val (val355 V0)).2).trans ?_
  rw [val355_main_arg0 V0, val355_main_v3 V0, val355_main_arg2 V0, val355_main_arg3 V0, val355_h V0, val355_y V0]
  rw [← hI_at (aX V0) (aA V0) (aB V0) 354 355 (by decide) rfl]
  exact (yJ_at (aX V0) (aA V0) (aB V0) (aC V0) 355 356 (by decide) rfl).symm
/-- The contents after step 356. -/
def val357 (V0 : Valuation τ sig (Elt Ideal)) : Valuation τ sig (Elt Ideal) := after (stepOps356 (F := Ideal)) (val356 V0)
theorem val357_main_arg0 (V0 : Valuation τ sig (Elt Ideal)) : val357 V0 (Proc.devRef .tc main_arg0) = aX V0 :=
  (after_keep _ 10 stepOps356_ok main_arg0 (by decide +kernel) (val356 V0)).trans (val356_main_arg0 V0)
theorem val357_main_arg1 (V0 : Valuation τ sig (Elt Ideal)) : val357 V0 (Proc.devRef .tc main_arg1) = aA V0 :=
  (after_keep _ 10 stepOps356_ok main_arg1 (by decide +kernel) (val356 V0)).trans (val356_main_arg1 V0)
theorem val357_main_arg2 (V0 : Valuation τ sig (Elt Ideal)) : val357 V0 (Proc.devRef .tc main_arg2) = aB V0 :=
  (after_keep _ 10 stepOps356_ok main_arg2 (by decide +kernel) (val356 V0)).trans (val356_main_arg2 V0)
theorem val357_main_arg3 (V0 : Valuation τ sig (Elt Ideal)) : val357 V0 (Proc.devRef .tc main_arg3) = aC V0 :=
  (after_keep _ 10 stepOps356_ok main_arg3 (by decide +kernel) (val356 V0)).trans (val356_main_arg3 V0)
theorem val357_main_v3 (V0 : Valuation τ sig (Elt Ideal)) : val357 V0 (Proc.devRef .tc main_v3) = decay (aA V0) :=
  (after_keep _ 10 stepOps356_ok main_v3 (by decide +kernel) (val356 V0)).trans (val356_main_v3 V0)
theorem val357_h (V0 : Valuation τ sig (Elt Ideal)) : val357 V0 (Proc.devRef .tc main_v7135) = hI (aX V0) (aA V0) (aB V0) 356 := by
  refine ((step356_val (val356 V0)).1).trans ?_
  rw [val356_main_arg0 V0, val356_main_v3 V0, val356_main_arg2 V0, val356_h V0]
  exact (hI_at (aX V0) (aA V0) (aB V0) 355 356 (by decide) rfl).symm
theorem val357_y (V0 : Valuation τ sig (Elt Ideal)) : val357 V0 (Proc.devRef .tc main_v7143) = yJ (aX V0) (aA V0) (aB V0) (aC V0) 357 := by
  refine ((step356_val (val356 V0)).2).trans ?_
  rw [val356_main_arg0 V0, val356_main_v3 V0, val356_main_arg2 V0, val356_main_arg3 V0, val356_h V0, val356_y V0]
  rw [← hI_at (aX V0) (aA V0) (aB V0) 355 356 (by decide) rfl]
  exact (yJ_at (aX V0) (aA V0) (aB V0) (aC V0) 356 357 (by decide) rfl).symm
/-- The contents after step 357. -/
def val358 (V0 : Valuation τ sig (Elt Ideal)) : Valuation τ sig (Elt Ideal) := after (stepOps357 (F := Ideal)) (val357 V0)
theorem val358_main_arg0 (V0 : Valuation τ sig (Elt Ideal)) : val358 V0 (Proc.devRef .tc main_arg0) = aX V0 :=
  (after_keep _ 10 stepOps357_ok main_arg0 (by decide +kernel) (val357 V0)).trans (val357_main_arg0 V0)
theorem val358_main_arg1 (V0 : Valuation τ sig (Elt Ideal)) : val358 V0 (Proc.devRef .tc main_arg1) = aA V0 :=
  (after_keep _ 10 stepOps357_ok main_arg1 (by decide +kernel) (val357 V0)).trans (val357_main_arg1 V0)
theorem val358_main_arg2 (V0 : Valuation τ sig (Elt Ideal)) : val358 V0 (Proc.devRef .tc main_arg2) = aB V0 :=
  (after_keep _ 10 stepOps357_ok main_arg2 (by decide +kernel) (val357 V0)).trans (val357_main_arg2 V0)
theorem val358_main_arg3 (V0 : Valuation τ sig (Elt Ideal)) : val358 V0 (Proc.devRef .tc main_arg3) = aC V0 :=
  (after_keep _ 10 stepOps357_ok main_arg3 (by decide +kernel) (val357 V0)).trans (val357_main_arg3 V0)
theorem val358_main_v3 (V0 : Valuation τ sig (Elt Ideal)) : val358 V0 (Proc.devRef .tc main_v3) = decay (aA V0) :=
  (after_keep _ 10 stepOps357_ok main_v3 (by decide +kernel) (val357 V0)).trans (val357_main_v3 V0)
theorem val358_h (V0 : Valuation τ sig (Elt Ideal)) : val358 V0 (Proc.devRef .tc main_v7155) = hI (aX V0) (aA V0) (aB V0) 357 := by
  refine ((step357_val (val357 V0)).1).trans ?_
  rw [val357_main_arg0 V0, val357_main_v3 V0, val357_main_arg2 V0, val357_h V0]
  exact (hI_at (aX V0) (aA V0) (aB V0) 356 357 (by decide) rfl).symm
theorem val358_y (V0 : Valuation τ sig (Elt Ideal)) : val358 V0 (Proc.devRef .tc main_v7163) = yJ (aX V0) (aA V0) (aB V0) (aC V0) 358 := by
  refine ((step357_val (val357 V0)).2).trans ?_
  rw [val357_main_arg0 V0, val357_main_v3 V0, val357_main_arg2 V0, val357_main_arg3 V0, val357_h V0, val357_y V0]
  rw [← hI_at (aX V0) (aA V0) (aB V0) 356 357 (by decide) rfl]
  exact (yJ_at (aX V0) (aA V0) (aB V0) (aC V0) 357 358 (by decide) rfl).symm
/-- The contents after step 358. -/
def val359 (V0 : Valuation τ sig (Elt Ideal)) : Valuation τ sig (Elt Ideal) := after (stepOps358 (F := Ideal)) (val358 V0)
theorem val359_main_arg0 (V0 : Valuation τ sig (Elt Ideal)) : val359 V0 (Proc.devRef .tc main_arg0) = aX V0 :=
  (after_keep _ 10 stepOps358_ok main_arg0 (by decide +kernel) (val358 V0)).trans (val358_main_arg0 V0)
theorem val359_main_arg1 (V0 : Valuation τ sig (Elt Ideal)) : val359 V0 (Proc.devRef .tc main_arg1) = aA V0 :=
  (after_keep _ 10 stepOps358_ok main_arg1 (by decide +kernel) (val358 V0)).trans (val358_main_arg1 V0)
theorem val359_main_arg2 (V0 : Valuation τ sig (Elt Ideal)) : val359 V0 (Proc.devRef .tc main_arg2) = aB V0 :=
  (after_keep _ 10 stepOps358_ok main_arg2 (by decide +kernel) (val358 V0)).trans (val358_main_arg2 V0)
theorem val359_main_arg3 (V0 : Valuation τ sig (Elt Ideal)) : val359 V0 (Proc.devRef .tc main_arg3) = aC V0 :=
  (after_keep _ 10 stepOps358_ok main_arg3 (by decide +kernel) (val358 V0)).trans (val358_main_arg3 V0)
theorem val359_main_v3 (V0 : Valuation τ sig (Elt Ideal)) : val359 V0 (Proc.devRef .tc main_v3) = decay (aA V0) :=
  (after_keep _ 10 stepOps358_ok main_v3 (by decide +kernel) (val358 V0)).trans (val358_main_v3 V0)
theorem val359_h (V0 : Valuation τ sig (Elt Ideal)) : val359 V0 (Proc.devRef .tc main_v7175) = hI (aX V0) (aA V0) (aB V0) 358 := by
  refine ((step358_val (val358 V0)).1).trans ?_
  rw [val358_main_arg0 V0, val358_main_v3 V0, val358_main_arg2 V0, val358_h V0]
  exact (hI_at (aX V0) (aA V0) (aB V0) 357 358 (by decide) rfl).symm
theorem val359_y (V0 : Valuation τ sig (Elt Ideal)) : val359 V0 (Proc.devRef .tc main_v7183) = yJ (aX V0) (aA V0) (aB V0) (aC V0) 359 := by
  refine ((step358_val (val358 V0)).2).trans ?_
  rw [val358_main_arg0 V0, val358_main_v3 V0, val358_main_arg2 V0, val358_main_arg3 V0, val358_h V0, val358_y V0]
  rw [← hI_at (aX V0) (aA V0) (aB V0) 357 358 (by decide) rfl]
  exact (yJ_at (aX V0) (aA V0) (aB V0) (aC V0) 358 359 (by decide) rfl).symm
/-- The contents after step 359. -/
def val360 (V0 : Valuation τ sig (Elt Ideal)) : Valuation τ sig (Elt Ideal) := after (stepOps359 (F := Ideal)) (val359 V0)
theorem val360_main_arg0 (V0 : Valuation τ sig (Elt Ideal)) : val360 V0 (Proc.devRef .tc main_arg0) = aX V0 :=
  (after_keep _ 10 stepOps359_ok main_arg0 (by decide +kernel) (val359 V0)).trans (val359_main_arg0 V0)
theorem val360_main_arg1 (V0 : Valuation τ sig (Elt Ideal)) : val360 V0 (Proc.devRef .tc main_arg1) = aA V0 :=
  (after_keep _ 10 stepOps359_ok main_arg1 (by decide +kernel) (val359 V0)).trans (val359_main_arg1 V0)
theorem val360_main_arg2 (V0 : Valuation τ sig (Elt Ideal)) : val360 V0 (Proc.devRef .tc main_arg2) = aB V0 :=
  (after_keep _ 10 stepOps359_ok main_arg2 (by decide +kernel) (val359 V0)).trans (val359_main_arg2 V0)
theorem val360_main_arg3 (V0 : Valuation τ sig (Elt Ideal)) : val360 V0 (Proc.devRef .tc main_arg3) = aC V0 :=
  (after_keep _ 10 stepOps359_ok main_arg3 (by decide +kernel) (val359 V0)).trans (val359_main_arg3 V0)
theorem val360_main_v3 (V0 : Valuation τ sig (Elt Ideal)) : val360 V0 (Proc.devRef .tc main_v3) = decay (aA V0) :=
  (after_keep _ 10 stepOps359_ok main_v3 (by decide +kernel) (val359 V0)).trans (val359_main_v3 V0)
theorem val360_h (V0 : Valuation τ sig (Elt Ideal)) : val360 V0 (Proc.devRef .tc main_v7195) = hI (aX V0) (aA V0) (aB V0) 359 := by
  refine ((step359_val (val359 V0)).1).trans ?_
  rw [val359_main_arg0 V0, val359_main_v3 V0, val359_main_arg2 V0, val359_h V0]
  exact (hI_at (aX V0) (aA V0) (aB V0) 358 359 (by decide) rfl).symm
theorem val360_y (V0 : Valuation τ sig (Elt Ideal)) : val360 V0 (Proc.devRef .tc main_v7203) = yJ (aX V0) (aA V0) (aB V0) (aC V0) 360 := by
  refine ((step359_val (val359 V0)).2).trans ?_
  rw [val359_main_arg0 V0, val359_main_v3 V0, val359_main_arg2 V0, val359_main_arg3 V0, val359_h V0, val359_y V0]
  rw [← hI_at (aX V0) (aA V0) (aB V0) 358 359 (by decide) rfl]
  exact (yJ_at (aX V0) (aA V0) (aB V0) (aC V0) 359 360 (by decide) rfl).symm
/-- The contents after step 360. -/
def val361 (V0 : Valuation τ sig (Elt Ideal)) : Valuation τ sig (Elt Ideal) := after (stepOps360 (F := Ideal)) (val360 V0)
theorem val361_main_arg0 (V0 : Valuation τ sig (Elt Ideal)) : val361 V0 (Proc.devRef .tc main_arg0) = aX V0 :=
  (after_keep _ 10 stepOps360_ok main_arg0 (by decide +kernel) (val360 V0)).trans (val360_main_arg0 V0)
theorem val361_main_arg1 (V0 : Valuation τ sig (Elt Ideal)) : val361 V0 (Proc.devRef .tc main_arg1) = aA V0 :=
  (after_keep _ 10 stepOps360_ok main_arg1 (by decide +kernel) (val360 V0)).trans (val360_main_arg1 V0)
theorem val361_main_arg2 (V0 : Valuation τ sig (Elt Ideal)) : val361 V0 (Proc.devRef .tc main_arg2) = aB V0 :=
  (after_keep _ 10 stepOps360_ok main_arg2 (by decide +kernel) (val360 V0)).trans (val360_main_arg2 V0)
theorem val361_main_arg3 (V0 : Valuation τ sig (Elt Ideal)) : val361 V0 (Proc.devRef .tc main_arg3) = aC V0 :=
  (after_keep _ 10 stepOps360_ok main_arg3 (by decide +kernel) (val360 V0)).trans (val360_main_arg3 V0)
theorem val361_main_v3 (V0 : Valuation τ sig (Elt Ideal)) : val361 V0 (Proc.devRef .tc main_v3) = decay (aA V0) :=
  (after_keep _ 10 stepOps360_ok main_v3 (by decide +kernel) (val360 V0)).trans (val360_main_v3 V0)
theorem val361_h (V0 : Valuation τ sig (Elt Ideal)) : val361 V0 (Proc.devRef .tc main_v7215) = hI (aX V0) (aA V0) (aB V0) 360 := by
  refine ((step360_val (val360 V0)).1).trans ?_
  rw [val360_main_arg0 V0, val360_main_v3 V0, val360_main_arg2 V0, val360_h V0]
  exact (hI_at (aX V0) (aA V0) (aB V0) 359 360 (by decide) rfl).symm
theorem val361_y (V0 : Valuation τ sig (Elt Ideal)) : val361 V0 (Proc.devRef .tc main_v7223) = yJ (aX V0) (aA V0) (aB V0) (aC V0) 361 := by
  refine ((step360_val (val360 V0)).2).trans ?_
  rw [val360_main_arg0 V0, val360_main_v3 V0, val360_main_arg2 V0, val360_main_arg3 V0, val360_h V0, val360_y V0]
  rw [← hI_at (aX V0) (aA V0) (aB V0) 359 360 (by decide) rfl]
  exact (yJ_at (aX V0) (aA V0) (aB V0) (aC V0) 360 361 (by decide) rfl).symm
/-- The contents after step 361. -/
def val362 (V0 : Valuation τ sig (Elt Ideal)) : Valuation τ sig (Elt Ideal) := after (stepOps361 (F := Ideal)) (val361 V0)
theorem val362_main_arg0 (V0 : Valuation τ sig (Elt Ideal)) : val362 V0 (Proc.devRef .tc main_arg0) = aX V0 :=
  (after_keep _ 10 stepOps361_ok main_arg0 (by decide +kernel) (val361 V0)).trans (val361_main_arg0 V0)
theorem val362_main_arg1 (V0 : Valuation τ sig (Elt Ideal)) : val362 V0 (Proc.devRef .tc main_arg1) = aA V0 :=
  (after_keep _ 10 stepOps361_ok main_arg1 (by decide +kernel) (val361 V0)).trans (val361_main_arg1 V0)
theorem val362_main_arg2 (V0 : Valuation τ sig (Elt Ideal)) : val362 V0 (Proc.devRef .tc main_arg2) = aB V0 :=
  (after_keep _ 10 stepOps361_ok main_arg2 (by decide +kernel) (val361 V0)).trans (val361_main_arg2 V0)
theorem val362_main_arg3 (V0 : Valuation τ sig (Elt Ideal)) : val362 V0 (Proc.devRef .tc main_arg3) = aC V0 :=
  (after_keep _ 10 stepOps361_ok main_arg3 (by decide +kernel) (val361 V0)).trans (val361_main_arg3 V0)
theorem val362_main_v3 (V0 : Valuation τ sig (Elt Ideal)) : val362 V0 (Proc.devRef .tc main_v3) = decay (aA V0) :=
  (after_keep _ 10 stepOps361_ok main_v3 (by decide +kernel) (val361 V0)).trans (val361_main_v3 V0)
theorem val362_h (V0 : Valuation τ sig (Elt Ideal)) : val362 V0 (Proc.devRef .tc main_v7235) = hI (aX V0) (aA V0) (aB V0) 361 := by
  refine ((step361_val (val361 V0)).1).trans ?_
  rw [val361_main_arg0 V0, val361_main_v3 V0, val361_main_arg2 V0, val361_h V0]
  exact (hI_at (aX V0) (aA V0) (aB V0) 360 361 (by decide) rfl).symm
theorem val362_y (V0 : Valuation τ sig (Elt Ideal)) : val362 V0 (Proc.devRef .tc main_v7243) = yJ (aX V0) (aA V0) (aB V0) (aC V0) 362 := by
  refine ((step361_val (val361 V0)).2).trans ?_
  rw [val361_main_arg0 V0, val361_main_v3 V0, val361_main_arg2 V0, val361_main_arg3 V0, val361_h V0, val361_y V0]
  rw [← hI_at (aX V0) (aA V0) (aB V0) 360 361 (by decide) rfl]
  exact (yJ_at (aX V0) (aA V0) (aB V0) (aC V0) 361 362 (by decide) rfl).symm
/-- The contents after step 362. -/
def val363 (V0 : Valuation τ sig (Elt Ideal)) : Valuation τ sig (Elt Ideal) := after (stepOps362 (F := Ideal)) (val362 V0)
theorem val363_main_arg0 (V0 : Valuation τ sig (Elt Ideal)) : val363 V0 (Proc.devRef .tc main_arg0) = aX V0 :=
  (after_keep _ 10 stepOps362_ok main_arg0 (by decide +kernel) (val362 V0)).trans (val362_main_arg0 V0)
theorem val363_main_arg1 (V0 : Valuation τ sig (Elt Ideal)) : val363 V0 (Proc.devRef .tc main_arg1) = aA V0 :=
  (after_keep _ 10 stepOps362_ok main_arg1 (by decide +kernel) (val362 V0)).trans (val362_main_arg1 V0)
theorem val363_main_arg2 (V0 : Valuation τ sig (Elt Ideal)) : val363 V0 (Proc.devRef .tc main_arg2) = aB V0 :=
  (after_keep _ 10 stepOps362_ok main_arg2 (by decide +kernel) (val362 V0)).trans (val362_main_arg2 V0)
theorem val363_main_arg3 (V0 : Valuation τ sig (Elt Ideal)) : val363 V0 (Proc.devRef .tc main_arg3) = aC V0 :=
  (after_keep _ 10 stepOps362_ok main_arg3 (by decide +kernel) (val362 V0)).trans (val362_main_arg3 V0)
theorem val363_main_v3 (V0 : Valuation τ sig (Elt Ideal)) : val363 V0 (Proc.devRef .tc main_v3) = decay (aA V0) :=
  (after_keep _ 10 stepOps362_ok main_v3 (by decide +kernel) (val362 V0)).trans (val362_main_v3 V0)
theorem val363_h (V0 : Valuation τ sig (Elt Ideal)) : val363 V0 (Proc.devRef .tc main_v7255) = hI (aX V0) (aA V0) (aB V0) 362 := by
  refine ((step362_val (val362 V0)).1).trans ?_
  rw [val362_main_arg0 V0, val362_main_v3 V0, val362_main_arg2 V0, val362_h V0]
  exact (hI_at (aX V0) (aA V0) (aB V0) 361 362 (by decide) rfl).symm
theorem val363_y (V0 : Valuation τ sig (Elt Ideal)) : val363 V0 (Proc.devRef .tc main_v7263) = yJ (aX V0) (aA V0) (aB V0) (aC V0) 363 := by
  refine ((step362_val (val362 V0)).2).trans ?_
  rw [val362_main_arg0 V0, val362_main_v3 V0, val362_main_arg2 V0, val362_main_arg3 V0, val362_h V0, val362_y V0]
  rw [← hI_at (aX V0) (aA V0) (aB V0) 361 362 (by decide) rfl]
  exact (yJ_at (aX V0) (aA V0) (aB V0) (aC V0) 362 363 (by decide) rfl).symm
/-- The contents after step 363. -/
def val364 (V0 : Valuation τ sig (Elt Ideal)) : Valuation τ sig (Elt Ideal) := after (stepOps363 (F := Ideal)) (val363 V0)
theorem val364_main_arg0 (V0 : Valuation τ sig (Elt Ideal)) : val364 V0 (Proc.devRef .tc main_arg0) = aX V0 :=
  (after_keep _ 10 stepOps363_ok main_arg0 (by decide +kernel) (val363 V0)).trans (val363_main_arg0 V0)
theorem val364_main_arg1 (V0 : Valuation τ sig (Elt Ideal)) : val364 V0 (Proc.devRef .tc main_arg1) = aA V0 :=
  (after_keep _ 10 stepOps363_ok main_arg1 (by decide +kernel) (val363 V0)).trans (val363_main_arg1 V0)
theorem val364_main_arg2 (V0 : Valuation τ sig (Elt Ideal)) : val364 V0 (Proc.devRef .tc main_arg2) = aB V0 :=
  (after_keep _ 10 stepOps363_ok main_arg2 (by decide +kernel) (val363 V0)).trans (val363_main_arg2 V0)
theorem val364_main_arg3 (V0 : Valuation τ sig (Elt Ideal)) : val364 V0 (Proc.devRef .tc main_arg3) = aC V0 :=
  (after_keep _ 10 stepOps363_ok main_arg3 (by decide +kernel) (val363 V0)).trans (val363_main_arg3 V0)
theorem val364_main_v3 (V0 : Valuation τ sig (Elt Ideal)) : val364 V0 (Proc.devRef .tc main_v3) = decay (aA V0) :=
  (after_keep _ 10 stepOps363_ok main_v3 (by decide +kernel) (val363 V0)).trans (val363_main_v3 V0)
theorem val364_h (V0 : Valuation τ sig (Elt Ideal)) : val364 V0 (Proc.devRef .tc main_v7275) = hI (aX V0) (aA V0) (aB V0) 363 := by
  refine ((step363_val (val363 V0)).1).trans ?_
  rw [val363_main_arg0 V0, val363_main_v3 V0, val363_main_arg2 V0, val363_h V0]
  exact (hI_at (aX V0) (aA V0) (aB V0) 362 363 (by decide) rfl).symm
theorem val364_y (V0 : Valuation τ sig (Elt Ideal)) : val364 V0 (Proc.devRef .tc main_v7283) = yJ (aX V0) (aA V0) (aB V0) (aC V0) 364 := by
  refine ((step363_val (val363 V0)).2).trans ?_
  rw [val363_main_arg0 V0, val363_main_v3 V0, val363_main_arg2 V0, val363_main_arg3 V0, val363_h V0, val363_y V0]
  rw [← hI_at (aX V0) (aA V0) (aB V0) 362 363 (by decide) rfl]
  exact (yJ_at (aX V0) (aA V0) (aB V0) (aC V0) 363 364 (by decide) rfl).symm
/-- The contents after step 364. -/
def val365 (V0 : Valuation τ sig (Elt Ideal)) : Valuation τ sig (Elt Ideal) := after (stepOps364 (F := Ideal)) (val364 V0)
theorem val365_main_arg0 (V0 : Valuation τ sig (Elt Ideal)) : val365 V0 (Proc.devRef .tc main_arg0) = aX V0 :=
  (after_keep _ 10 stepOps364_ok main_arg0 (by decide +kernel) (val364 V0)).trans (val364_main_arg0 V0)
theorem val365_main_arg1 (V0 : Valuation τ sig (Elt Ideal)) : val365 V0 (Proc.devRef .tc main_arg1) = aA V0 :=
  (after_keep _ 10 stepOps364_ok main_arg1 (by decide +kernel) (val364 V0)).trans (val364_main_arg1 V0)
theorem val365_main_arg2 (V0 : Valuation τ sig (Elt Ideal)) : val365 V0 (Proc.devRef .tc main_arg2) = aB V0 :=
  (after_keep _ 10 stepOps364_ok main_arg2 (by decide +kernel) (val364 V0)).trans (val364_main_arg2 V0)
theorem val365_main_arg3 (V0 : Valuation τ sig (Elt Ideal)) : val365 V0 (Proc.devRef .tc main_arg3) = aC V0 :=
  (after_keep _ 10 stepOps364_ok main_arg3 (by decide +kernel) (val364 V0)).trans (val364_main_arg3 V0)
theorem val365_main_v3 (V0 : Valuation τ sig (Elt Ideal)) : val365 V0 (Proc.devRef .tc main_v3) = decay (aA V0) :=
  (after_keep _ 10 stepOps364_ok main_v3 (by decide +kernel) (val364 V0)).trans (val364_main_v3 V0)
theorem val365_h (V0 : Valuation τ sig (Elt Ideal)) : val365 V0 (Proc.devRef .tc main_v7295) = hI (aX V0) (aA V0) (aB V0) 364 := by
  refine ((step364_val (val364 V0)).1).trans ?_
  rw [val364_main_arg0 V0, val364_main_v3 V0, val364_main_arg2 V0, val364_h V0]
  exact (hI_at (aX V0) (aA V0) (aB V0) 363 364 (by decide) rfl).symm
theorem val365_y (V0 : Valuation τ sig (Elt Ideal)) : val365 V0 (Proc.devRef .tc main_v7303) = yJ (aX V0) (aA V0) (aB V0) (aC V0) 365 := by
  refine ((step364_val (val364 V0)).2).trans ?_
  rw [val364_main_arg0 V0, val364_main_v3 V0, val364_main_arg2 V0, val364_main_arg3 V0, val364_h V0, val364_y V0]
  rw [← hI_at (aX V0) (aA V0) (aB V0) 363 364 (by decide) rfl]
  exact (yJ_at (aX V0) (aA V0) (aB V0) (aC V0) 364 365 (by decide) rfl).symm
/-- The contents after step 365. -/
def val366 (V0 : Valuation τ sig (Elt Ideal)) : Valuation τ sig (Elt Ideal) := after (stepOps365 (F := Ideal)) (val365 V0)
theorem val366_main_arg0 (V0 : Valuation τ sig (Elt Ideal)) : val366 V0 (Proc.devRef .tc main_arg0) = aX V0 :=
  (after_keep _ 10 stepOps365_ok main_arg0 (by decide +kernel) (val365 V0)).trans (val365_main_arg0 V0)
theorem val366_main_arg1 (V0 : Valuation τ sig (Elt Ideal)) : val366 V0 (Proc.devRef .tc main_arg1) = aA V0 :=
  (after_keep _ 10 stepOps365_ok main_arg1 (by decide +kernel) (val365 V0)).trans (val365_main_arg1 V0)
theorem val366_main_arg2 (V0 : Valuation τ sig (Elt Ideal)) : val366 V0 (Proc.devRef .tc main_arg2) = aB V0 :=
  (after_keep _ 10 stepOps365_ok main_arg2 (by decide +kernel) (val365 V0)).trans (val365_main_arg2 V0)
theorem val366_main_arg3 (V0 : Valuation τ sig (Elt Ideal)) : val366 V0 (Proc.devRef .tc main_arg3) = aC V0 :=
  (after_keep _ 10 stepOps365_ok main_arg3 (by decide +kernel) (val365 V0)).trans (val365_main_arg3 V0)
theorem val366_main_v3 (V0 : Valuation τ sig (Elt Ideal)) : val366 V0 (Proc.devRef .tc main_v3) = decay (aA V0) :=
  (after_keep _ 10 stepOps365_ok main_v3 (by decide +kernel) (val365 V0)).trans (val365_main_v3 V0)
theorem val366_h (V0 : Valuation τ sig (Elt Ideal)) : val366 V0 (Proc.devRef .tc main_v7315) = hI (aX V0) (aA V0) (aB V0) 365 := by
  refine ((step365_val (val365 V0)).1).trans ?_
  rw [val365_main_arg0 V0, val365_main_v3 V0, val365_main_arg2 V0, val365_h V0]
  exact (hI_at (aX V0) (aA V0) (aB V0) 364 365 (by decide) rfl).symm
theorem val366_y (V0 : Valuation τ sig (Elt Ideal)) : val366 V0 (Proc.devRef .tc main_v7323) = yJ (aX V0) (aA V0) (aB V0) (aC V0) 366 := by
  refine ((step365_val (val365 V0)).2).trans ?_
  rw [val365_main_arg0 V0, val365_main_v3 V0, val365_main_arg2 V0, val365_main_arg3 V0, val365_h V0, val365_y V0]
  rw [← hI_at (aX V0) (aA V0) (aB V0) 364 365 (by decide) rfl]
  exact (yJ_at (aX V0) (aA V0) (aB V0) (aC V0) 365 366 (by decide) rfl).symm
/-- The contents after step 366. -/
def val367 (V0 : Valuation τ sig (Elt Ideal)) : Valuation τ sig (Elt Ideal) := after (stepOps366 (F := Ideal)) (val366 V0)
theorem val367_main_arg0 (V0 : Valuation τ sig (Elt Ideal)) : val367 V0 (Proc.devRef .tc main_arg0) = aX V0 :=
  (after_keep _ 10 stepOps366_ok main_arg0 (by decide +kernel) (val366 V0)).trans (val366_main_arg0 V0)
theorem val367_main_arg1 (V0 : Valuation τ sig (Elt Ideal)) : val367 V0 (Proc.devRef .tc main_arg1) = aA V0 :=
  (after_keep _ 10 stepOps366_ok main_arg1 (by decide +kernel) (val366 V0)).trans (val366_main_arg1 V0)
theorem val367_main_arg2 (V0 : Valuation τ sig (Elt Ideal)) : val367 V0 (Proc.devRef .tc main_arg2) = aB V0 :=
  (after_keep _ 10 stepOps366_ok main_arg2 (by decide +kernel) (val366 V0)).trans (val366_main_arg2 V0)
theorem val367_main_arg3 (V0 : Valuation τ sig (Elt Ideal)) : val367 V0 (Proc.devRef .tc main_arg3) = aC V0 :=
  (after_keep _ 10 stepOps366_ok main_arg3 (by decide +kernel) (val366 V0)).trans (val366_main_arg3 V0)
theorem val367_main_v3 (V0 : Valuation τ sig (Elt Ideal)) : val367 V0 (Proc.devRef .tc main_v3) = decay (aA V0) :=
  (after_keep _ 10 stepOps366_ok main_v3 (by decide +kernel) (val366 V0)).trans (val366_main_v3 V0)
theorem val367_h (V0 : Valuation τ sig (Elt Ideal)) : val367 V0 (Proc.devRef .tc main_v7335) = hI (aX V0) (aA V0) (aB V0) 366 := by
  refine ((step366_val (val366 V0)).1).trans ?_
  rw [val366_main_arg0 V0, val366_main_v3 V0, val366_main_arg2 V0, val366_h V0]
  exact (hI_at (aX V0) (aA V0) (aB V0) 365 366 (by decide) rfl).symm
theorem val367_y (V0 : Valuation τ sig (Elt Ideal)) : val367 V0 (Proc.devRef .tc main_v7343) = yJ (aX V0) (aA V0) (aB V0) (aC V0) 367 := by
  refine ((step366_val (val366 V0)).2).trans ?_
  rw [val366_main_arg0 V0, val366_main_v3 V0, val366_main_arg2 V0, val366_main_arg3 V0, val366_h V0, val366_y V0]
  rw [← hI_at (aX V0) (aA V0) (aB V0) 365 366 (by decide) rfl]
  exact (yJ_at (aX V0) (aA V0) (aB V0) (aC V0) 366 367 (by decide) rfl).symm
/-- The contents after step 367. -/
def val368 (V0 : Valuation τ sig (Elt Ideal)) : Valuation τ sig (Elt Ideal) := after (stepOps367 (F := Ideal)) (val367 V0)
theorem val368_main_arg0 (V0 : Valuation τ sig (Elt Ideal)) : val368 V0 (Proc.devRef .tc main_arg0) = aX V0 :=
  (after_keep _ 10 stepOps367_ok main_arg0 (by decide +kernel) (val367 V0)).trans (val367_main_arg0 V0)
theorem val368_main_arg1 (V0 : Valuation τ sig (Elt Ideal)) : val368 V0 (Proc.devRef .tc main_arg1) = aA V0 :=
  (after_keep _ 10 stepOps367_ok main_arg1 (by decide +kernel) (val367 V0)).trans (val367_main_arg1 V0)
theorem val368_main_arg2 (V0 : Valuation τ sig (Elt Ideal)) : val368 V0 (Proc.devRef .tc main_arg2) = aB V0 :=
  (after_keep _ 10 stepOps367_ok main_arg2 (by decide +kernel) (val367 V0)).trans (val367_main_arg2 V0)
theorem val368_main_arg3 (V0 : Valuation τ sig (Elt Ideal)) : val368 V0 (Proc.devRef .tc main_arg3) = aC V0 :=
  (after_keep _ 10 stepOps367_ok main_arg3 (by decide +kernel) (val367 V0)).trans (val367_main_arg3 V0)
theorem val368_main_v3 (V0 : Valuation τ sig (Elt Ideal)) : val368 V0 (Proc.devRef .tc main_v3) = decay (aA V0) :=
  (after_keep _ 10 stepOps367_ok main_v3 (by decide +kernel) (val367 V0)).trans (val367_main_v3 V0)
theorem val368_h (V0 : Valuation τ sig (Elt Ideal)) : val368 V0 (Proc.devRef .tc main_v7355) = hI (aX V0) (aA V0) (aB V0) 367 := by
  refine ((step367_val (val367 V0)).1).trans ?_
  rw [val367_main_arg0 V0, val367_main_v3 V0, val367_main_arg2 V0, val367_h V0]
  exact (hI_at (aX V0) (aA V0) (aB V0) 366 367 (by decide) rfl).symm
theorem val368_y (V0 : Valuation τ sig (Elt Ideal)) : val368 V0 (Proc.devRef .tc main_v7363) = yJ (aX V0) (aA V0) (aB V0) (aC V0) 368 := by
  refine ((step367_val (val367 V0)).2).trans ?_
  rw [val367_main_arg0 V0, val367_main_v3 V0, val367_main_arg2 V0, val367_main_arg3 V0, val367_h V0, val367_y V0]
  rw [← hI_at (aX V0) (aA V0) (aB V0) 366 367 (by decide) rfl]
  exact (yJ_at (aX V0) (aA V0) (aB V0) (aC V0) 367 368 (by decide) rfl).symm
/-- The contents after step 368. -/
def val369 (V0 : Valuation τ sig (Elt Ideal)) : Valuation τ sig (Elt Ideal) := after (stepOps368 (F := Ideal)) (val368 V0)
theorem val369_main_arg0 (V0 : Valuation τ sig (Elt Ideal)) : val369 V0 (Proc.devRef .tc main_arg0) = aX V0 :=
  (after_keep _ 10 stepOps368_ok main_arg0 (by decide +kernel) (val368 V0)).trans (val368_main_arg0 V0)
theorem val369_main_arg1 (V0 : Valuation τ sig (Elt Ideal)) : val369 V0 (Proc.devRef .tc main_arg1) = aA V0 :=
  (after_keep _ 10 stepOps368_ok main_arg1 (by decide +kernel) (val368 V0)).trans (val368_main_arg1 V0)
theorem val369_main_arg2 (V0 : Valuation τ sig (Elt Ideal)) : val369 V0 (Proc.devRef .tc main_arg2) = aB V0 :=
  (after_keep _ 10 stepOps368_ok main_arg2 (by decide +kernel) (val368 V0)).trans (val368_main_arg2 V0)
theorem val369_main_arg3 (V0 : Valuation τ sig (Elt Ideal)) : val369 V0 (Proc.devRef .tc main_arg3) = aC V0 :=
  (after_keep _ 10 stepOps368_ok main_arg3 (by decide +kernel) (val368 V0)).trans (val368_main_arg3 V0)
theorem val369_main_v3 (V0 : Valuation τ sig (Elt Ideal)) : val369 V0 (Proc.devRef .tc main_v3) = decay (aA V0) :=
  (after_keep _ 10 stepOps368_ok main_v3 (by decide +kernel) (val368 V0)).trans (val368_main_v3 V0)
theorem val369_h (V0 : Valuation τ sig (Elt Ideal)) : val369 V0 (Proc.devRef .tc main_v7375) = hI (aX V0) (aA V0) (aB V0) 368 := by
  refine ((step368_val (val368 V0)).1).trans ?_
  rw [val368_main_arg0 V0, val368_main_v3 V0, val368_main_arg2 V0, val368_h V0]
  exact (hI_at (aX V0) (aA V0) (aB V0) 367 368 (by decide) rfl).symm
theorem val369_y (V0 : Valuation τ sig (Elt Ideal)) : val369 V0 (Proc.devRef .tc main_v7383) = yJ (aX V0) (aA V0) (aB V0) (aC V0) 369 := by
  refine ((step368_val (val368 V0)).2).trans ?_
  rw [val368_main_arg0 V0, val368_main_v3 V0, val368_main_arg2 V0, val368_main_arg3 V0, val368_h V0, val368_y V0]
  rw [← hI_at (aX V0) (aA V0) (aB V0) 367 368 (by decide) rfl]
  exact (yJ_at (aX V0) (aA V0) (aB V0) (aC V0) 368 369 (by decide) rfl).symm
/-- The contents after step 369. -/
def val370 (V0 : Valuation τ sig (Elt Ideal)) : Valuation τ sig (Elt Ideal) := after (stepOps369 (F := Ideal)) (val369 V0)
theorem val370_main_arg0 (V0 : Valuation τ sig (Elt Ideal)) : val370 V0 (Proc.devRef .tc main_arg0) = aX V0 :=
  (after_keep _ 10 stepOps369_ok main_arg0 (by decide +kernel) (val369 V0)).trans (val369_main_arg0 V0)
theorem val370_main_arg1 (V0 : Valuation τ sig (Elt Ideal)) : val370 V0 (Proc.devRef .tc main_arg1) = aA V0 :=
  (after_keep _ 10 stepOps369_ok main_arg1 (by decide +kernel) (val369 V0)).trans (val369_main_arg1 V0)
theorem val370_main_arg2 (V0 : Valuation τ sig (Elt Ideal)) : val370 V0 (Proc.devRef .tc main_arg2) = aB V0 :=
  (after_keep _ 10 stepOps369_ok main_arg2 (by decide +kernel) (val369 V0)).trans (val369_main_arg2 V0)
theorem val370_main_arg3 (V0 : Valuation τ sig (Elt Ideal)) : val370 V0 (Proc.devRef .tc main_arg3) = aC V0 :=
  (after_keep _ 10 stepOps369_ok main_arg3 (by decide +kernel) (val369 V0)).trans (val369_main_arg3 V0)
theorem val370_main_v3 (V0 : Valuation τ sig (Elt Ideal)) : val370 V0 (Proc.devRef .tc main_v3) = decay (aA V0) :=
  (after_keep _ 10 stepOps369_ok main_v3 (by decide +kernel) (val369 V0)).trans (val369_main_v3 V0)
theorem val370_h (V0 : Valuation τ sig (Elt Ideal)) : val370 V0 (Proc.devRef .tc main_v7395) = hI (aX V0) (aA V0) (aB V0) 369 := by
  refine ((step369_val (val369 V0)).1).trans ?_
  rw [val369_main_arg0 V0, val369_main_v3 V0, val369_main_arg2 V0, val369_h V0]
  exact (hI_at (aX V0) (aA V0) (aB V0) 368 369 (by decide) rfl).symm
theorem val370_y (V0 : Valuation τ sig (Elt Ideal)) : val370 V0 (Proc.devRef .tc main_v7403) = yJ (aX V0) (aA V0) (aB V0) (aC V0) 370 := by
  refine ((step369_val (val369 V0)).2).trans ?_
  rw [val369_main_arg0 V0, val369_main_v3 V0, val369_main_arg2 V0, val369_main_arg3 V0, val369_h V0, val369_y V0]
  rw [← hI_at (aX V0) (aA V0) (aB V0) 368 369 (by decide) rfl]
  exact (yJ_at (aX V0) (aA V0) (aB V0) (aC V0) 369 370 (by decide) rfl).symm
/-- The contents after step 370. -/
def val371 (V0 : Valuation τ sig (Elt Ideal)) : Valuation τ sig (Elt Ideal) := after (stepOps370 (F := Ideal)) (val370 V0)
theorem val371_main_arg0 (V0 : Valuation τ sig (Elt Ideal)) : val371 V0 (Proc.devRef .tc main_arg0) = aX V0 :=
  (after_keep _ 10 stepOps370_ok main_arg0 (by decide +kernel) (val370 V0)).trans (val370_main_arg0 V0)
theorem val371_main_arg1 (V0 : Valuation τ sig (Elt Ideal)) : val371 V0 (Proc.devRef .tc main_arg1) = aA V0 :=
  (after_keep _ 10 stepOps370_ok main_arg1 (by decide +kernel) (val370 V0)).trans (val370_main_arg1 V0)
theorem val371_main_arg2 (V0 : Valuation τ sig (Elt Ideal)) : val371 V0 (Proc.devRef .tc main_arg2) = aB V0 :=
  (after_keep _ 10 stepOps370_ok main_arg2 (by decide +kernel) (val370 V0)).trans (val370_main_arg2 V0)
theorem val371_main_arg3 (V0 : Valuation τ sig (Elt Ideal)) : val371 V0 (Proc.devRef .tc main_arg3) = aC V0 :=
  (after_keep _ 10 stepOps370_ok main_arg3 (by decide +kernel) (val370 V0)).trans (val370_main_arg3 V0)
theorem val371_main_v3 (V0 : Valuation τ sig (Elt Ideal)) : val371 V0 (Proc.devRef .tc main_v3) = decay (aA V0) :=
  (after_keep _ 10 stepOps370_ok main_v3 (by decide +kernel) (val370 V0)).trans (val370_main_v3 V0)
theorem val371_h (V0 : Valuation τ sig (Elt Ideal)) : val371 V0 (Proc.devRef .tc main_v7415) = hI (aX V0) (aA V0) (aB V0) 370 := by
  refine ((step370_val (val370 V0)).1).trans ?_
  rw [val370_main_arg0 V0, val370_main_v3 V0, val370_main_arg2 V0, val370_h V0]
  exact (hI_at (aX V0) (aA V0) (aB V0) 369 370 (by decide) rfl).symm
theorem val371_y (V0 : Valuation τ sig (Elt Ideal)) : val371 V0 (Proc.devRef .tc main_v7423) = yJ (aX V0) (aA V0) (aB V0) (aC V0) 371 := by
  refine ((step370_val (val370 V0)).2).trans ?_
  rw [val370_main_arg0 V0, val370_main_v3 V0, val370_main_arg2 V0, val370_main_arg3 V0, val370_h V0, val370_y V0]
  rw [← hI_at (aX V0) (aA V0) (aB V0) 369 370 (by decide) rfl]
  exact (yJ_at (aX V0) (aA V0) (aB V0) (aC V0) 370 371 (by decide) rfl).symm
/-- The contents after step 371. -/
def val372 (V0 : Valuation τ sig (Elt Ideal)) : Valuation τ sig (Elt Ideal) := after (stepOps371 (F := Ideal)) (val371 V0)
theorem val372_main_arg0 (V0 : Valuation τ sig (Elt Ideal)) : val372 V0 (Proc.devRef .tc main_arg0) = aX V0 :=
  (after_keep _ 10 stepOps371_ok main_arg0 (by decide +kernel) (val371 V0)).trans (val371_main_arg0 V0)
theorem val372_main_arg1 (V0 : Valuation τ sig (Elt Ideal)) : val372 V0 (Proc.devRef .tc main_arg1) = aA V0 :=
  (after_keep _ 10 stepOps371_ok main_arg1 (by decide +kernel) (val371 V0)).trans (val371_main_arg1 V0)
theorem val372_main_arg2 (V0 : Valuation τ sig (Elt Ideal)) : val372 V0 (Proc.devRef .tc main_arg2) = aB V0 :=
  (after_keep _ 10 stepOps371_ok main_arg2 (by decide +kernel) (val371 V0)).trans (val371_main_arg2 V0)
theorem val372_main_arg3 (V0 : Valuation τ sig (Elt Ideal)) : val372 V0 (Proc.devRef .tc main_arg3) = aC V0 :=
  (after_keep _ 10 stepOps371_ok main_arg3 (by decide +kernel) (val371 V0)).trans (val371_main_arg3 V0)
theorem val372_main_v3 (V0 : Valuation τ sig (Elt Ideal)) : val372 V0 (Proc.devRef .tc main_v3) = decay (aA V0) :=
  (after_keep _ 10 stepOps371_ok main_v3 (by decide +kernel) (val371 V0)).trans (val371_main_v3 V0)
theorem val372_h (V0 : Valuation τ sig (Elt Ideal)) : val372 V0 (Proc.devRef .tc main_v7435) = hI (aX V0) (aA V0) (aB V0) 371 := by
  refine ((step371_val (val371 V0)).1).trans ?_
  rw [val371_main_arg0 V0, val371_main_v3 V0, val371_main_arg2 V0, val371_h V0]
  exact (hI_at (aX V0) (aA V0) (aB V0) 370 371 (by decide) rfl).symm
theorem val372_y (V0 : Valuation τ sig (Elt Ideal)) : val372 V0 (Proc.devRef .tc main_v7443) = yJ (aX V0) (aA V0) (aB V0) (aC V0) 372 := by
  refine ((step371_val (val371 V0)).2).trans ?_
  rw [val371_main_arg0 V0, val371_main_v3 V0, val371_main_arg2 V0, val371_main_arg3 V0, val371_h V0, val371_y V0]
  rw [← hI_at (aX V0) (aA V0) (aB V0) 370 371 (by decide) rfl]
  exact (yJ_at (aX V0) (aA V0) (aB V0) (aC V0) 371 372 (by decide) rfl).symm
/-- The contents after step 372. -/
def val373 (V0 : Valuation τ sig (Elt Ideal)) : Valuation τ sig (Elt Ideal) := after (stepOps372 (F := Ideal)) (val372 V0)
theorem val373_main_arg0 (V0 : Valuation τ sig (Elt Ideal)) : val373 V0 (Proc.devRef .tc main_arg0) = aX V0 :=
  (after_keep _ 10 stepOps372_ok main_arg0 (by decide +kernel) (val372 V0)).trans (val372_main_arg0 V0)
theorem val373_main_arg1 (V0 : Valuation τ sig (Elt Ideal)) : val373 V0 (Proc.devRef .tc main_arg1) = aA V0 :=
  (after_keep _ 10 stepOps372_ok main_arg1 (by decide +kernel) (val372 V0)).trans (val372_main_arg1 V0)
theorem val373_main_arg2 (V0 : Valuation τ sig (Elt Ideal)) : val373 V0 (Proc.devRef .tc main_arg2) = aB V0 :=
  (after_keep _ 10 stepOps372_ok main_arg2 (by decide +kernel) (val372 V0)).trans (val372_main_arg2 V0)
theorem val373_main_arg3 (V0 : Valuation τ sig (Elt Ideal)) : val373 V0 (Proc.devRef .tc main_arg3) = aC V0 :=
  (after_keep _ 10 stepOps372_ok main_arg3 (by decide +kernel) (val372 V0)).trans (val372_main_arg3 V0)
theorem val373_main_v3 (V0 : Valuation τ sig (Elt Ideal)) : val373 V0 (Proc.devRef .tc main_v3) = decay (aA V0) :=
  (after_keep _ 10 stepOps372_ok main_v3 (by decide +kernel) (val372 V0)).trans (val372_main_v3 V0)
theorem val373_h (V0 : Valuation τ sig (Elt Ideal)) : val373 V0 (Proc.devRef .tc main_v7455) = hI (aX V0) (aA V0) (aB V0) 372 := by
  refine ((step372_val (val372 V0)).1).trans ?_
  rw [val372_main_arg0 V0, val372_main_v3 V0, val372_main_arg2 V0, val372_h V0]
  exact (hI_at (aX V0) (aA V0) (aB V0) 371 372 (by decide) rfl).symm
theorem val373_y (V0 : Valuation τ sig (Elt Ideal)) : val373 V0 (Proc.devRef .tc main_v7463) = yJ (aX V0) (aA V0) (aB V0) (aC V0) 373 := by
  refine ((step372_val (val372 V0)).2).trans ?_
  rw [val372_main_arg0 V0, val372_main_v3 V0, val372_main_arg2 V0, val372_main_arg3 V0, val372_h V0, val372_y V0]
  rw [← hI_at (aX V0) (aA V0) (aB V0) 371 372 (by decide) rfl]
  exact (yJ_at (aX V0) (aA V0) (aB V0) (aC V0) 372 373 (by decide) rfl).symm
/-- The contents after step 373. -/
def val374 (V0 : Valuation τ sig (Elt Ideal)) : Valuation τ sig (Elt Ideal) := after (stepOps373 (F := Ideal)) (val373 V0)
theorem val374_main_arg0 (V0 : Valuation τ sig (Elt Ideal)) : val374 V0 (Proc.devRef .tc main_arg0) = aX V0 :=
  (after_keep _ 10 stepOps373_ok main_arg0 (by decide +kernel) (val373 V0)).trans (val373_main_arg0 V0)
theorem val374_main_arg1 (V0 : Valuation τ sig (Elt Ideal)) : val374 V0 (Proc.devRef .tc main_arg1) = aA V0 :=
  (after_keep _ 10 stepOps373_ok main_arg1 (by decide +kernel) (val373 V0)).trans (val373_main_arg1 V0)
theorem val374_main_arg2 (V0 : Valuation τ sig (Elt Ideal)) : val374 V0 (Proc.devRef .tc main_arg2) = aB V0 :=
  (after_keep _ 10 stepOps373_ok main_arg2 (by decide +kernel) (val373 V0)).trans (val373_main_arg2 V0)
theorem val374_main_arg3 (V0 : Valuation τ sig (Elt Ideal)) : val374 V0 (Proc.devRef .tc main_arg3) = aC V0 :=
  (after_keep _ 10 stepOps373_ok main_arg3 (by decide +kernel) (val373 V0)).trans (val373_main_arg3 V0)
theorem val374_main_v3 (V0 : Valuation τ sig (Elt Ideal)) : val374 V0 (Proc.devRef .tc main_v3) = decay (aA V0) :=
  (after_keep _ 10 stepOps373_ok main_v3 (by decide +kernel) (val373 V0)).trans (val373_main_v3 V0)
theorem val374_h (V0 : Valuation τ sig (Elt Ideal)) : val374 V0 (Proc.devRef .tc main_v7475) = hI (aX V0) (aA V0) (aB V0) 373 := by
  refine ((step373_val (val373 V0)).1).trans ?_
  rw [val373_main_arg0 V0, val373_main_v3 V0, val373_main_arg2 V0, val373_h V0]
  exact (hI_at (aX V0) (aA V0) (aB V0) 372 373 (by decide) rfl).symm
theorem val374_y (V0 : Valuation τ sig (Elt Ideal)) : val374 V0 (Proc.devRef .tc main_v7483) = yJ (aX V0) (aA V0) (aB V0) (aC V0) 374 := by
  refine ((step373_val (val373 V0)).2).trans ?_
  rw [val373_main_arg0 V0, val373_main_v3 V0, val373_main_arg2 V0, val373_main_arg3 V0, val373_h V0, val373_y V0]
  rw [← hI_at (aX V0) (aA V0) (aB V0) 372 373 (by decide) rfl]
  exact (yJ_at (aX V0) (aA V0) (aB V0) (aC V0) 373 374 (by decide) rfl).symm
/-- The contents after step 374. -/
def val375 (V0 : Valuation τ sig (Elt Ideal)) : Valuation τ sig (Elt Ideal) := after (stepOps374 (F := Ideal)) (val374 V0)
theorem val375_main_arg0 (V0 : Valuation τ sig (Elt Ideal)) : val375 V0 (Proc.devRef .tc main_arg0) = aX V0 :=
  (after_keep _ 10 stepOps374_ok main_arg0 (by decide +kernel) (val374 V0)).trans (val374_main_arg0 V0)
theorem val375_main_arg1 (V0 : Valuation τ sig (Elt Ideal)) : val375 V0 (Proc.devRef .tc main_arg1) = aA V0 :=
  (after_keep _ 10 stepOps374_ok main_arg1 (by decide +kernel) (val374 V0)).trans (val374_main_arg1 V0)
theorem val375_main_arg2 (V0 : Valuation τ sig (Elt Ideal)) : val375 V0 (Proc.devRef .tc main_arg2) = aB V0 :=
  (after_keep _ 10 stepOps374_ok main_arg2 (by decide +kernel) (val374 V0)).trans (val374_main_arg2 V0)
theorem val375_main_arg3 (V0 : Valuation τ sig (Elt Ideal)) : val375 V0 (Proc.devRef .tc main_arg3) = aC V0 :=
  (after_keep _ 10 stepOps374_ok main_arg3 (by decide +kernel) (val374 V0)).trans (val374_main_arg3 V0)
theorem val375_main_v3 (V0 : Valuation τ sig (Elt Ideal)) : val375 V0 (Proc.devRef .tc main_v3) = decay (aA V0) :=
  (after_keep _ 10 stepOps374_ok main_v3 (by decide +kernel) (val374 V0)).trans (val374_main_v3 V0)
theorem val375_h (V0 : Valuation τ sig (Elt Ideal)) : val375 V0 (Proc.devRef .tc main_v7495) = hI (aX V0) (aA V0) (aB V0) 374 := by
  refine ((step374_val (val374 V0)).1).trans ?_
  rw [val374_main_arg0 V0, val374_main_v3 V0, val374_main_arg2 V0, val374_h V0]
  exact (hI_at (aX V0) (aA V0) (aB V0) 373 374 (by decide) rfl).symm
theorem val375_y (V0 : Valuation τ sig (Elt Ideal)) : val375 V0 (Proc.devRef .tc main_v7503) = yJ (aX V0) (aA V0) (aB V0) (aC V0) 375 := by
  refine ((step374_val (val374 V0)).2).trans ?_
  rw [val374_main_arg0 V0, val374_main_v3 V0, val374_main_arg2 V0, val374_main_arg3 V0, val374_h V0, val374_y V0]
  rw [← hI_at (aX V0) (aA V0) (aB V0) 373 374 (by decide) rfl]
  exact (yJ_at (aX V0) (aA V0) (aB V0) (aC V0) 374 375 (by decide) rfl).symm
/-- The contents after step 375. -/
def val376 (V0 : Valuation τ sig (Elt Ideal)) : Valuation τ sig (Elt Ideal) := after (stepOps375 (F := Ideal)) (val375 V0)
theorem val376_main_arg0 (V0 : Valuation τ sig (Elt Ideal)) : val376 V0 (Proc.devRef .tc main_arg0) = aX V0 :=
  (after_keep _ 10 stepOps375_ok main_arg0 (by decide +kernel) (val375 V0)).trans (val375_main_arg0 V0)
theorem val376_main_arg1 (V0 : Valuation τ sig (Elt Ideal)) : val376 V0 (Proc.devRef .tc main_arg1) = aA V0 :=
  (after_keep _ 10 stepOps375_ok main_arg1 (by decide +kernel) (val375 V0)).trans (val375_main_arg1 V0)
theorem val376_main_arg2 (V0 : Valuation τ sig (Elt Ideal)) : val376 V0 (Proc.devRef .tc main_arg2) = aB V0 :=
  (after_keep _ 10 stepOps375_ok main_arg2 (by decide +kernel) (val375 V0)).trans (val375_main_arg2 V0)
theorem val376_main_arg3 (V0 : Valuation τ sig (Elt Ideal)) : val376 V0 (Proc.devRef .tc main_arg3) = aC V0 :=
  (after_keep _ 10 stepOps375_ok main_arg3 (by decide +kernel) (val375 V0)).trans (val375_main_arg3 V0)
theorem val376_main_v3 (V0 : Valuation τ sig (Elt Ideal)) : val376 V0 (Proc.devRef .tc main_v3) = decay (aA V0) :=
  (after_keep _ 10 stepOps375_ok main_v3 (by decide +kernel) (val375 V0)).trans (val375_main_v3 V0)
theorem val376_h (V0 : Valuation τ sig (Elt Ideal)) : val376 V0 (Proc.devRef .tc main_v7515) = hI (aX V0) (aA V0) (aB V0) 375 := by
  refine ((step375_val (val375 V0)).1).trans ?_
  rw [val375_main_arg0 V0, val375_main_v3 V0, val375_main_arg2 V0, val375_h V0]
  exact (hI_at (aX V0) (aA V0) (aB V0) 374 375 (by decide) rfl).symm
theorem val376_y (V0 : Valuation τ sig (Elt Ideal)) : val376 V0 (Proc.devRef .tc main_v7523) = yJ (aX V0) (aA V0) (aB V0) (aC V0) 376 := by
  refine ((step375_val (val375 V0)).2).trans ?_
  rw [val375_main_arg0 V0, val375_main_v3 V0, val375_main_arg2 V0, val375_main_arg3 V0, val375_h V0, val375_y V0]
  rw [← hI_at (aX V0) (aA V0) (aB V0) 374 375 (by decide) rfl]
  exact (yJ_at (aX V0) (aA V0) (aB V0) (aC V0) 375 376 (by decide) rfl).symm
/-- The contents after step 376. -/
def val377 (V0 : Valuation τ sig (Elt Ideal)) : Valuation τ sig (Elt Ideal) := after (stepOps376 (F := Ideal)) (val376 V0)
theorem val377_main_arg0 (V0 : Valuation τ sig (Elt Ideal)) : val377 V0 (Proc.devRef .tc main_arg0) = aX V0 :=
  (after_keep _ 10 stepOps376_ok main_arg0 (by decide +kernel) (val376 V0)).trans (val376_main_arg0 V0)
theorem val377_main_arg1 (V0 : Valuation τ sig (Elt Ideal)) : val377 V0 (Proc.devRef .tc main_arg1) = aA V0 :=
  (after_keep _ 10 stepOps376_ok main_arg1 (by decide +kernel) (val376 V0)).trans (val376_main_arg1 V0)
theorem val377_main_arg2 (V0 : Valuation τ sig (Elt Ideal)) : val377 V0 (Proc.devRef .tc main_arg2) = aB V0 :=
  (after_keep _ 10 stepOps376_ok main_arg2 (by decide +kernel) (val376 V0)).trans (val376_main_arg2 V0)
theorem val377_main_arg3 (V0 : Valuation τ sig (Elt Ideal)) : val377 V0 (Proc.devRef .tc main_arg3) = aC V0 :=
  (after_keep _ 10 stepOps376_ok main_arg3 (by decide +kernel) (val376 V0)).trans (val376_main_arg3 V0)
theorem val377_main_v3 (V0 : Valuation τ sig (Elt Ideal)) : val377 V0 (Proc.devRef .tc main_v3) = decay (aA V0) :=
  (after_keep _ 10 stepOps376_ok main_v3 (by decide +kernel) (val376 V0)).trans (val376_main_v3 V0)
theorem val377_h (V0 : Valuation τ sig (Elt Ideal)) : val377 V0 (Proc.devRef .tc main_v7535) = hI (aX V0) (aA V0) (aB V0) 376 := by
  refine ((step376_val (val376 V0)).1).trans ?_
  rw [val376_main_arg0 V0, val376_main_v3 V0, val376_main_arg2 V0, val376_h V0]
  exact (hI_at (aX V0) (aA V0) (aB V0) 375 376 (by decide) rfl).symm
theorem val377_y (V0 : Valuation τ sig (Elt Ideal)) : val377 V0 (Proc.devRef .tc main_v7543) = yJ (aX V0) (aA V0) (aB V0) (aC V0) 377 := by
  refine ((step376_val (val376 V0)).2).trans ?_
  rw [val376_main_arg0 V0, val376_main_v3 V0, val376_main_arg2 V0, val376_main_arg3 V0, val376_h V0, val376_y V0]
  rw [← hI_at (aX V0) (aA V0) (aB V0) 375 376 (by decide) rfl]
  exact (yJ_at (aX V0) (aA V0) (aB V0) (aC V0) 376 377 (by decide) rfl).symm
/-- The contents after step 377. -/
def val378 (V0 : Valuation τ sig (Elt Ideal)) : Valuation τ sig (Elt Ideal) := after (stepOps377 (F := Ideal)) (val377 V0)
theorem val378_main_arg0 (V0 : Valuation τ sig (Elt Ideal)) : val378 V0 (Proc.devRef .tc main_arg0) = aX V0 :=
  (after_keep _ 10 stepOps377_ok main_arg0 (by decide +kernel) (val377 V0)).trans (val377_main_arg0 V0)
theorem val378_main_arg1 (V0 : Valuation τ sig (Elt Ideal)) : val378 V0 (Proc.devRef .tc main_arg1) = aA V0 :=
  (after_keep _ 10 stepOps377_ok main_arg1 (by decide +kernel) (val377 V0)).trans (val377_main_arg1 V0)
theorem val378_main_arg2 (V0 : Valuation τ sig (Elt Ideal)) : val378 V0 (Proc.devRef .tc main_arg2) = aB V0 :=
  (after_keep _ 10 stepOps377_ok main_arg2 (by decide +kernel) (val377 V0)).trans (val377_main_arg2 V0)
theorem val378_main_arg3 (V0 : Valuation τ sig (Elt Ideal)) : val378 V0 (Proc.devRef .tc main_arg3) = aC V0 :=
  (after_keep _ 10 stepOps377_ok main_arg3 (by decide +kernel) (val377 V0)).trans (val377_main_arg3 V0)
theorem val378_main_v3 (V0 : Valuation τ sig (Elt Ideal)) : val378 V0 (Proc.devRef .tc main_v3) = decay (aA V0) :=
  (after_keep _ 10 stepOps377_ok main_v3 (by decide +kernel) (val377 V0)).trans (val377_main_v3 V0)
theorem val378_h (V0 : Valuation τ sig (Elt Ideal)) : val378 V0 (Proc.devRef .tc main_v7555) = hI (aX V0) (aA V0) (aB V0) 377 := by
  refine ((step377_val (val377 V0)).1).trans ?_
  rw [val377_main_arg0 V0, val377_main_v3 V0, val377_main_arg2 V0, val377_h V0]
  exact (hI_at (aX V0) (aA V0) (aB V0) 376 377 (by decide) rfl).symm
theorem val378_y (V0 : Valuation τ sig (Elt Ideal)) : val378 V0 (Proc.devRef .tc main_v7563) = yJ (aX V0) (aA V0) (aB V0) (aC V0) 378 := by
  refine ((step377_val (val377 V0)).2).trans ?_
  rw [val377_main_arg0 V0, val377_main_v3 V0, val377_main_arg2 V0, val377_main_arg3 V0, val377_h V0, val377_y V0]
  rw [← hI_at (aX V0) (aA V0) (aB V0) 376 377 (by decide) rfl]
  exact (yJ_at (aX V0) (aA V0) (aB V0) (aC V0) 377 378 (by decide) rfl).symm
/-- The contents after step 378. -/
def val379 (V0 : Valuation τ sig (Elt Ideal)) : Valuation τ sig (Elt Ideal) := after (stepOps378 (F := Ideal)) (val378 V0)
theorem val379_main_arg0 (V0 : Valuation τ sig (Elt Ideal)) : val379 V0 (Proc.devRef .tc main_arg0) = aX V0 :=
  (after_keep _ 10 stepOps378_ok main_arg0 (by decide +kernel) (val378 V0)).trans (val378_main_arg0 V0)
theorem val379_main_arg1 (V0 : Valuation τ sig (Elt Ideal)) : val379 V0 (Proc.devRef .tc main_arg1) = aA V0 :=
  (after_keep _ 10 stepOps378_ok main_arg1 (by decide +kernel) (val378 V0)).trans (val378_main_arg1 V0)
theorem val379_main_arg2 (V0 : Valuation τ sig (Elt Ideal)) : val379 V0 (Proc.devRef .tc main_arg2) = aB V0 :=
  (after_keep _ 10 stepOps378_ok main_arg2 (by decide +kernel) (val378 V0)).trans (val378_main_arg2 V0)
theorem val379_main_arg3 (V0 : Valuation τ sig (Elt Ideal)) : val379 V0 (Proc.devRef .tc main_arg3) = aC V0 :=
  (after_keep _ 10 stepOps378_ok main_arg3 (by decide +kernel) (val378 V0)).trans (val378_main_arg3 V0)
theorem val379_main_v3 (V0 : Valuation τ sig (Elt Ideal)) : val379 V0 (Proc.devRef .tc main_v3) = decay (aA V0) :=
  (after_keep _ 10 stepOps378_ok main_v3 (by decide +kernel) (val378 V0)).trans (val378_main_v3 V0)
theorem val379_h (V0 : Valuation τ sig (Elt Ideal)) : val379 V0 (Proc.devRef .tc main_v7575) = hI (aX V0) (aA V0) (aB V0) 378 := by
  refine ((step378_val (val378 V0)).1).trans ?_
  rw [val378_main_arg0 V0, val378_main_v3 V0, val378_main_arg2 V0, val378_h V0]
  exact (hI_at (aX V0) (aA V0) (aB V0) 377 378 (by decide) rfl).symm
theorem val379_y (V0 : Valuation τ sig (Elt Ideal)) : val379 V0 (Proc.devRef .tc main_v7583) = yJ (aX V0) (aA V0) (aB V0) (aC V0) 379 := by
  refine ((step378_val (val378 V0)).2).trans ?_
  rw [val378_main_arg0 V0, val378_main_v3 V0, val378_main_arg2 V0, val378_main_arg3 V0, val378_h V0, val378_y V0]
  rw [← hI_at (aX V0) (aA V0) (aB V0) 377 378 (by decide) rfl]
  exact (yJ_at (aX V0) (aA V0) (aB V0) (aC V0) 378 379 (by decide) rfl).symm
/-- The contents after step 379. -/
def val380 (V0 : Valuation τ sig (Elt Ideal)) : Valuation τ sig (Elt Ideal) := after (stepOps379 (F := Ideal)) (val379 V0)
theorem val380_main_arg0 (V0 : Valuation τ sig (Elt Ideal)) : val380 V0 (Proc.devRef .tc main_arg0) = aX V0 :=
  (after_keep _ 10 stepOps379_ok main_arg0 (by decide +kernel) (val379 V0)).trans (val379_main_arg0 V0)
theorem val380_main_arg1 (V0 : Valuation τ sig (Elt Ideal)) : val380 V0 (Proc.devRef .tc main_arg1) = aA V0 :=
  (after_keep _ 10 stepOps379_ok main_arg1 (by decide +kernel) (val379 V0)).trans (val379_main_arg1 V0)
theorem val380_main_arg2 (V0 : Valuation τ sig (Elt Ideal)) : val380 V0 (Proc.devRef .tc main_arg2) = aB V0 :=
  (after_keep _ 10 stepOps379_ok main_arg2 (by decide +kernel) (val379 V0)).trans (val379_main_arg2 V0)
theorem val380_main_arg3 (V0 : Valuation τ sig (Elt Ideal)) : val380 V0 (Proc.devRef .tc main_arg3) = aC V0 :=
  (after_keep _ 10 stepOps379_ok main_arg3 (by decide +kernel) (val379 V0)).trans (val379_main_arg3 V0)
theorem val380_main_v3 (V0 : Valuation τ sig (Elt Ideal)) : val380 V0 (Proc.devRef .tc main_v3) = decay (aA V0) :=
  (after_keep _ 10 stepOps379_ok main_v3 (by decide +kernel) (val379 V0)).trans (val379_main_v3 V0)
theorem val380_h (V0 : Valuation τ sig (Elt Ideal)) : val380 V0 (Proc.devRef .tc main_v7595) = hI (aX V0) (aA V0) (aB V0) 379 := by
  refine ((step379_val (val379 V0)).1).trans ?_
  rw [val379_main_arg0 V0, val379_main_v3 V0, val379_main_arg2 V0, val379_h V0]
  exact (hI_at (aX V0) (aA V0) (aB V0) 378 379 (by decide) rfl).symm
theorem val380_y (V0 : Valuation τ sig (Elt Ideal)) : val380 V0 (Proc.devRef .tc main_v7603) = yJ (aX V0) (aA V0) (aB V0) (aC V0) 380 := by
  refine ((step379_val (val379 V0)).2).trans ?_
  rw [val379_main_arg0 V0, val379_main_v3 V0, val379_main_arg2 V0, val379_main_arg3 V0, val379_h V0, val379_y V0]
  rw [← hI_at (aX V0) (aA V0) (aB V0) 378 379 (by decide) rfl]
  exact (yJ_at (aX V0) (aA V0) (aB V0) (aC V0) 379 380 (by decide) rfl).symm
/-- The contents after step 380. -/
def val381 (V0 : Valuation τ sig (Elt Ideal)) : Valuation τ sig (Elt Ideal) := after (stepOps380 (F := Ideal)) (val380 V0)
theorem val381_main_arg0 (V0 : Valuation τ sig (Elt Ideal)) : val381 V0 (Proc.devRef .tc main_arg0) = aX V0 :=
  (after_keep _ 10 stepOps380_ok main_arg0 (by decide +kernel) (val380 V0)).trans (val380_main_arg0 V0)
theorem val381_main_arg1 (V0 : Valuation τ sig (Elt Ideal)) : val381 V0 (Proc.devRef .tc main_arg1) = aA V0 :=
  (after_keep _ 10 stepOps380_ok main_arg1 (by decide +kernel) (val380 V0)).trans (val380_main_arg1 V0)
theorem val381_main_arg2 (V0 : Valuation τ sig (Elt Ideal)) : val381 V0 (Proc.devRef .tc main_arg2) = aB V0 :=
  (after_keep _ 10 stepOps380_ok main_arg2 (by decide +kernel) (val380 V0)).trans (val380_main_arg2 V0)
theorem val381_main_arg3 (V0 : Valuation τ sig (Elt Ideal)) : val381 V0 (Proc.devRef .tc main_arg3) = aC V0 :=
  (after_keep _ 10 stepOps380_ok main_arg3 (by decide +kernel) (val380 V0)).trans (val380_main_arg3 V0)
theorem val381_main_v3 (V0 : Valuation τ sig (Elt Ideal)) : val381 V0 (Proc.devRef .tc main_v3) = decay (aA V0) :=
  (after_keep _ 10 stepOps380_ok main_v3 (by decide +kernel) (val380 V0)).trans (val380_main_v3 V0)
theorem val381_h (V0 : Valuation τ sig (Elt Ideal)) : val381 V0 (Proc.devRef .tc main_v7615) = hI (aX V0) (aA V0) (aB V0) 380 := by
  refine ((step380_val (val380 V0)).1).trans ?_
  rw [val380_main_arg0 V0, val380_main_v3 V0, val380_main_arg2 V0, val380_h V0]
  exact (hI_at (aX V0) (aA V0) (aB V0) 379 380 (by decide) rfl).symm
theorem val381_y (V0 : Valuation τ sig (Elt Ideal)) : val381 V0 (Proc.devRef .tc main_v7623) = yJ (aX V0) (aA V0) (aB V0) (aC V0) 381 := by
  refine ((step380_val (val380 V0)).2).trans ?_
  rw [val380_main_arg0 V0, val380_main_v3 V0, val380_main_arg2 V0, val380_main_arg3 V0, val380_h V0, val380_y V0]
  rw [← hI_at (aX V0) (aA V0) (aB V0) 379 380 (by decide) rfl]
  exact (yJ_at (aX V0) (aA V0) (aB V0) (aC V0) 380 381 (by decide) rfl).symm
/-- The contents after step 381. -/
def val382 (V0 : Valuation τ sig (Elt Ideal)) : Valuation τ sig (Elt Ideal) := after (stepOps381 (F := Ideal)) (val381 V0)
theorem val382_main_arg0 (V0 : Valuation τ sig (Elt Ideal)) : val382 V0 (Proc.devRef .tc main_arg0) = aX V0 :=
  (after_keep _ 10 stepOps381_ok main_arg0 (by decide +kernel) (val381 V0)).trans (val381_main_arg0 V0)
theorem val382_main_arg1 (V0 : Valuation τ sig (Elt Ideal)) : val382 V0 (Proc.devRef .tc main_arg1) = aA V0 :=
  (after_keep _ 10 stepOps381_ok main_arg1 (by decide +kernel) (val381 V0)).trans (val381_main_arg1 V0)
theorem val382_main_arg2 (V0 : Valuation τ sig (Elt Ideal)) : val382 V0 (Proc.devRef .tc main_arg2) = aB V0 :=
  (after_keep _ 10 stepOps381_ok main_arg2 (by decide +kernel) (val381 V0)).trans (val381_main_arg2 V0)
theorem val382_main_arg3 (V0 : Valuation τ sig (Elt Ideal)) : val382 V0 (Proc.devRef .tc main_arg3) = aC V0 :=
  (after_keep _ 10 stepOps381_ok main_arg3 (by decide +kernel) (val381 V0)).trans (val381_main_arg3 V0)
theorem val382_main_v3 (V0 : Valuation τ sig (Elt Ideal)) : val382 V0 (Proc.devRef .tc main_v3) = decay (aA V0) :=
  (after_keep _ 10 stepOps381_ok main_v3 (by decide +kernel) (val381 V0)).trans (val381_main_v3 V0)
theorem val382_h (V0 : Valuation τ sig (Elt Ideal)) : val382 V0 (Proc.devRef .tc main_v7635) = hI (aX V0) (aA V0) (aB V0) 381 := by
  refine ((step381_val (val381 V0)).1).trans ?_
  rw [val381_main_arg0 V0, val381_main_v3 V0, val381_main_arg2 V0, val381_h V0]
  exact (hI_at (aX V0) (aA V0) (aB V0) 380 381 (by decide) rfl).symm
theorem val382_y (V0 : Valuation τ sig (Elt Ideal)) : val382 V0 (Proc.devRef .tc main_v7643) = yJ (aX V0) (aA V0) (aB V0) (aC V0) 382 := by
  refine ((step381_val (val381 V0)).2).trans ?_
  rw [val381_main_arg0 V0, val381_main_v3 V0, val381_main_arg2 V0, val381_main_arg3 V0, val381_h V0, val381_y V0]
  rw [← hI_at (aX V0) (aA V0) (aB V0) 380 381 (by decide) rfl]
  exact (yJ_at (aX V0) (aA V0) (aB V0) (aC V0) 381 382 (by decide) rfl).symm
/-- The contents after step 382. -/
def val383 (V0 : Valuation τ sig (Elt Ideal)) : Valuation τ sig (Elt Ideal) := after (stepOps382 (F := Ideal)) (val382 V0)
theorem val383_main_arg0 (V0 : Valuation τ sig (Elt Ideal)) : val383 V0 (Proc.devRef .tc main_arg0) = aX V0 :=
  (after_keep _ 10 stepOps382_ok main_arg0 (by decide +kernel) (val382 V0)).trans (val382_main_arg0 V0)
theorem val383_main_arg1 (V0 : Valuation τ sig (Elt Ideal)) : val383 V0 (Proc.devRef .tc main_arg1) = aA V0 :=
  (after_keep _ 10 stepOps382_ok main_arg1 (by decide +kernel) (val382 V0)).trans (val382_main_arg1 V0)
theorem val383_main_arg2 (V0 : Valuation τ sig (Elt Ideal)) : val383 V0 (Proc.devRef .tc main_arg2) = aB V0 :=
  (after_keep _ 10 stepOps382_ok main_arg2 (by decide +kernel) (val382 V0)).trans (val382_main_arg2 V0)
theorem val383_main_arg3 (V0 : Valuation τ sig (Elt Ideal)) : val383 V0 (Proc.devRef .tc main_arg3) = aC V0 :=
  (after_keep _ 10 stepOps382_ok main_arg3 (by decide +kernel) (val382 V0)).trans (val382_main_arg3 V0)
theorem val383_main_v3 (V0 : Valuation τ sig (Elt Ideal)) : val383 V0 (Proc.devRef .tc main_v3) = decay (aA V0) :=
  (after_keep _ 10 stepOps382_ok main_v3 (by decide +kernel) (val382 V0)).trans (val382_main_v3 V0)
theorem val383_h (V0 : Valuation τ sig (Elt Ideal)) : val383 V0 (Proc.devRef .tc main_v7655) = hI (aX V0) (aA V0) (aB V0) 382 := by
  refine ((step382_val (val382 V0)).1).trans ?_
  rw [val382_main_arg0 V0, val382_main_v3 V0, val382_main_arg2 V0, val382_h V0]
  exact (hI_at (aX V0) (aA V0) (aB V0) 381 382 (by decide) rfl).symm
theorem val383_y (V0 : Valuation τ sig (Elt Ideal)) : val383 V0 (Proc.devRef .tc main_v7663) = yJ (aX V0) (aA V0) (aB V0) (aC V0) 383 := by
  refine ((step382_val (val382 V0)).2).trans ?_
  rw [val382_main_arg0 V0, val382_main_v3 V0, val382_main_arg2 V0, val382_main_arg3 V0, val382_h V0, val382_y V0]
  rw [← hI_at (aX V0) (aA V0) (aB V0) 381 382 (by decide) rfl]
  exact (yJ_at (aX V0) (aA V0) (aB V0) (aC V0) 382 383 (by decide) rfl).symm
/-- The contents after step 383. -/
def val384 (V0 : Valuation τ sig (Elt Ideal)) : Valuation τ sig (Elt Ideal) := after (stepOps383 (F := Ideal)) (val383 V0)
theorem val384_main_arg0 (V0 : Valuation τ sig (Elt Ideal)) : val384 V0 (Proc.devRef .tc main_arg0) = aX V0 :=
  (after_keep _ 10 stepOps383_ok main_arg0 (by decide +kernel) (val383 V0)).trans (val383_main_arg0 V0)
theorem val384_main_arg1 (V0 : Valuation τ sig (Elt Ideal)) : val384 V0 (Proc.devRef .tc main_arg1) = aA V0 :=
  (after_keep _ 10 stepOps383_ok main_arg1 (by decide +kernel) (val383 V0)).trans (val383_main_arg1 V0)
theorem val384_main_arg2 (V0 : Valuation τ sig (Elt Ideal)) : val384 V0 (Proc.devRef .tc main_arg2) = aB V0 :=
  (after_keep _ 10 stepOps383_ok main_arg2 (by decide +kernel) (val383 V0)).trans (val383_main_arg2 V0)
theorem val384_main_arg3 (V0 : Valuation τ sig (Elt Ideal)) : val384 V0 (Proc.devRef .tc main_arg3) = aC V0 :=
  (after_keep _ 10 stepOps383_ok main_arg3 (by decide +kernel) (val383 V0)).trans (val383_main_arg3 V0)
theorem val384_main_v3 (V0 : Valuation τ sig (Elt Ideal)) : val384 V0 (Proc.devRef .tc main_v3) = decay (aA V0) :=
  (after_keep _ 10 stepOps383_ok main_v3 (by decide +kernel) (val383 V0)).trans (val383_main_v3 V0)
theorem val384_h (V0 : Valuation τ sig (Elt Ideal)) : val384 V0 (Proc.devRef .tc main_v7675) = hI (aX V0) (aA V0) (aB V0) 383 := by
  refine ((step383_val (val383 V0)).1).trans ?_
  rw [val383_main_arg0 V0, val383_main_v3 V0, val383_main_arg2 V0, val383_h V0]
  exact (hI_at (aX V0) (aA V0) (aB V0) 382 383 (by decide) rfl).symm
theorem val384_y (V0 : Valuation τ sig (Elt Ideal)) : val384 V0 (Proc.devRef .tc main_v7683) = yJ (aX V0) (aA V0) (aB V0) (aC V0) 384 := by
  refine ((step383_val (val383 V0)).2).trans ?_
  rw [val383_main_arg0 V0, val383_main_v3 V0, val383_main_arg2 V0, val383_main_arg3 V0, val383_h V0, val383_y V0]
  rw [← hI_at (aX V0) (aA V0) (aB V0) 382 383 (by decide) rfl]
  exact (yJ_at (aX V0) (aA V0) (aB V0) (aC V0) 383 384 (by decide) rfl).symm
/-- The contents after step 384. -/
def val385 (V0 : Valuation τ sig (Elt Ideal)) : Valuation τ sig (Elt Ideal) := after (stepOps384 (F := Ideal)) (val384 V0)
theorem val385_main_arg0 (V0 : Valuation τ sig (Elt Ideal)) : val385 V0 (Proc.devRef .tc main_arg0) = aX V0 :=
  (after_keep _ 10 stepOps384_ok main_arg0 (by decide +kernel) (val384 V0)).trans (val384_main_arg0 V0)
theorem val385_main_arg1 (V0 : Valuation τ sig (Elt Ideal)) : val385 V0 (Proc.devRef .tc main_arg1) = aA V0 :=
  (after_keep _ 10 stepOps384_ok main_arg1 (by decide +kernel) (val384 V0)).trans (val384_main_arg1 V0)
theorem val385_main_arg2 (V0 : Valuation τ sig (Elt Ideal)) : val385 V0 (Proc.devRef .tc main_arg2) = aB V0 :=
  (after_keep _ 10 stepOps384_ok main_arg2 (by decide +kernel) (val384 V0)).trans (val384_main_arg2 V0)
theorem val385_main_arg3 (V0 : Valuation τ sig (Elt Ideal)) : val385 V0 (Proc.devRef .tc main_arg3) = aC V0 :=
  (after_keep _ 10 stepOps384_ok main_arg3 (by decide +kernel) (val384 V0)).trans (val384_main_arg3 V0)
theorem val385_main_v3 (V0 : Valuation τ sig (Elt Ideal)) : val385 V0 (Proc.devRef .tc main_v3) = decay (aA V0) :=
  (after_keep _ 10 stepOps384_ok main_v3 (by decide +kernel) (val384 V0)).trans (val384_main_v3 V0)
theorem val385_h (V0 : Valuation τ sig (Elt Ideal)) : val385 V0 (Proc.devRef .tc main_v7695) = hI (aX V0) (aA V0) (aB V0) 384 := by
  refine ((step384_val (val384 V0)).1).trans ?_
  rw [val384_main_arg0 V0, val384_main_v3 V0, val384_main_arg2 V0, val384_h V0]
  exact (hI_at (aX V0) (aA V0) (aB V0) 383 384 (by decide) rfl).symm
theorem val385_y (V0 : Valuation τ sig (Elt Ideal)) : val385 V0 (Proc.devRef .tc main_v7703) = yJ (aX V0) (aA V0) (aB V0) (aC V0) 385 := by
  refine ((step384_val (val384 V0)).2).trans ?_
  rw [val384_main_arg0 V0, val384_main_v3 V0, val384_main_arg2 V0, val384_main_arg3 V0, val384_h V0, val384_y V0]
  rw [← hI_at (aX V0) (aA V0) (aB V0) 383 384 (by decide) rfl]
  exact (yJ_at (aX V0) (aA V0) (aB V0) (aC V0) 384 385 (by decide) rfl).symm
/-- The contents after step 385. -/
def val386 (V0 : Valuation τ sig (Elt Ideal)) : Valuation τ sig (Elt Ideal) := after (stepOps385 (F := Ideal)) (val385 V0)
theorem val386_main_arg0 (V0 : Valuation τ sig (Elt Ideal)) : val386 V0 (Proc.devRef .tc main_arg0) = aX V0 :=
  (after_keep _ 10 stepOps385_ok main_arg0 (by decide +kernel) (val385 V0)).trans (val385_main_arg0 V0)
theorem val386_main_arg1 (V0 : Valuation τ sig (Elt Ideal)) : val386 V0 (Proc.devRef .tc main_arg1) = aA V0 :=
  (after_keep _ 10 stepOps385_ok main_arg1 (by decide +kernel) (val385 V0)).trans (val385_main_arg1 V0)
theorem val386_main_arg2 (V0 : Valuation τ sig (Elt Ideal)) : val386 V0 (Proc.devRef .tc main_arg2) = aB V0 :=
  (after_keep _ 10 stepOps385_ok main_arg2 (by decide +kernel) (val385 V0)).trans (val385_main_arg2 V0)
theorem val386_main_arg3 (V0 : Valuation τ sig (Elt Ideal)) : val386 V0 (Proc.devRef .tc main_arg3) = aC V0 :=
  (after_keep _ 10 stepOps385_ok main_arg3 (by decide +kernel) (val385 V0)).trans (val385_main_arg3 V0)
theorem val386_main_v3 (V0 : Valuation τ sig (Elt Ideal)) : val386 V0 (Proc.devRef .tc main_v3) = decay (aA V0) :=
  (after_keep _ 10 stepOps385_ok main_v3 (by decide +kernel) (val385 V0)).trans (val385_main_v3 V0)
theorem val386_h (V0 : Valuation τ sig (Elt Ideal)) : val386 V0 (Proc.devRef .tc main_v7715) = hI (aX V0) (aA V0) (aB V0) 385 := by
  refine ((step385_val (val385 V0)).1).trans ?_
  rw [val385_main_arg0 V0, val385_main_v3 V0, val385_main_arg2 V0, val385_h V0]
  exact (hI_at (aX V0) (aA V0) (aB V0) 384 385 (by decide) rfl).symm
theorem val386_y (V0 : Valuation τ sig (Elt Ideal)) : val386 V0 (Proc.devRef .tc main_v7723) = yJ (aX V0) (aA V0) (aB V0) (aC V0) 386 := by
  refine ((step385_val (val385 V0)).2).trans ?_
  rw [val385_main_arg0 V0, val385_main_v3 V0, val385_main_arg2 V0, val385_main_arg3 V0, val385_h V0, val385_y V0]
  rw [← hI_at (aX V0) (aA V0) (aB V0) 384 385 (by decide) rfl]
  exact (yJ_at (aX V0) (aA V0) (aB V0) (aC V0) 385 386 (by decide) rfl).symm
/-- The contents after step 386. -/
def val387 (V0 : Valuation τ sig (Elt Ideal)) : Valuation τ sig (Elt Ideal) := after (stepOps386 (F := Ideal)) (val386 V0)
theorem val387_main_arg0 (V0 : Valuation τ sig (Elt Ideal)) : val387 V0 (Proc.devRef .tc main_arg0) = aX V0 :=
  (after_keep _ 10 stepOps386_ok main_arg0 (by decide +kernel) (val386 V0)).trans (val386_main_arg0 V0)
theorem val387_main_arg1 (V0 : Valuation τ sig (Elt Ideal)) : val387 V0 (Proc.devRef .tc main_arg1) = aA V0 :=
  (after_keep _ 10 stepOps386_ok main_arg1 (by decide +kernel) (val386 V0)).trans (val386_main_arg1 V0)
theorem val387_main_arg2 (V0 : Valuation τ sig (Elt Ideal)) : val387 V0 (Proc.devRef .tc main_arg2) = aB V0 :=
  (after_keep _ 10 stepOps386_ok main_arg2 (by decide +kernel) (val386 V0)).trans (val386_main_arg2 V0)
theorem val387_main_arg3 (V0 : Valuation τ sig (Elt Ideal)) : val387 V0 (Proc.devRef .tc main_arg3) = aC V0 :=
  (after_keep _ 10 stepOps386_ok main_arg3 (by decide +kernel) (val386 V0)).trans (val386_main_arg3 V0)
theorem val387_main_v3 (V0 : Valuation τ sig (Elt Ideal)) : val387 V0 (Proc.devRef .tc main_v3) = decay (aA V0) :=
  (after_keep _ 10 stepOps386_ok main_v3 (by decide +kernel) (val386 V0)).trans (val386_main_v3 V0)
theorem val387_h (V0 : Valuation τ sig (Elt Ideal)) : val387 V0 (Proc.devRef .tc main_v7735) = hI (aX V0) (aA V0) (aB V0) 386 := by
  refine ((step386_val (val386 V0)).1).trans ?_
  rw [val386_main_arg0 V0, val386_main_v3 V0, val386_main_arg2 V0, val386_h V0]
  exact (hI_at (aX V0) (aA V0) (aB V0) 385 386 (by decide) rfl).symm
theorem val387_y (V0 : Valuation τ sig (Elt Ideal)) : val387 V0 (Proc.devRef .tc main_v7743) = yJ (aX V0) (aA V0) (aB V0) (aC V0) 387 := by
  refine ((step386_val (val386 V0)).2).trans ?_
  rw [val386_main_arg0 V0, val386_main_v3 V0, val386_main_arg2 V0, val386_main_arg3 V0, val386_h V0, val386_y V0]
  rw [← hI_at (aX V0) (aA V0) (aB V0) 385 386 (by decide) rfl]
  exact (yJ_at (aX V0) (aA V0) (aB V0) (aC V0) 386 387 (by decide) rfl).symm
/-- The contents after step 387. -/
def val388 (V0 : Valuation τ sig (Elt Ideal)) : Valuation τ sig (Elt Ideal) := after (stepOps387 (F := Ideal)) (val387 V0)
theorem val388_main_arg0 (V0 : Valuation τ sig (Elt Ideal)) : val388 V0 (Proc.devRef .tc main_arg0) = aX V0 :=
  (after_keep _ 10 stepOps387_ok main_arg0 (by decide +kernel) (val387 V0)).trans (val387_main_arg0 V0)
theorem val388_main_arg1 (V0 : Valuation τ sig (Elt Ideal)) : val388 V0 (Proc.devRef .tc main_arg1) = aA V0 :=
  (after_keep _ 10 stepOps387_ok main_arg1 (by decide +kernel) (val387 V0)).trans (val387_main_arg1 V0)
theorem val388_main_arg2 (V0 : Valuation τ sig (Elt Ideal)) : val388 V0 (Proc.devRef .tc main_arg2) = aB V0 :=
  (after_keep _ 10 stepOps387_ok main_arg2 (by decide +kernel) (val387 V0)).trans (val387_main_arg2 V0)
theorem val388_main_arg3 (V0 : Valuation τ sig (Elt Ideal)) : val388 V0 (Proc.devRef .tc main_arg3) = aC V0 :=
  (after_keep _ 10 stepOps387_ok main_arg3 (by decide +kernel) (val387 V0)).trans (val387_main_arg3 V0)
theorem val388_main_v3 (V0 : Valuation τ sig (Elt Ideal)) : val388 V0 (Proc.devRef .tc main_v3) = decay (aA V0) :=
  (after_keep _ 10 stepOps387_ok main_v3 (by decide +kernel) (val387 V0)).trans (val387_main_v3 V0)
theorem val388_h (V0 : Valuation τ sig (Elt Ideal)) : val388 V0 (Proc.devRef .tc main_v7755) = hI (aX V0) (aA V0) (aB V0) 387 := by
  refine ((step387_val (val387 V0)).1).trans ?_
  rw [val387_main_arg0 V0, val387_main_v3 V0, val387_main_arg2 V0, val387_h V0]
  exact (hI_at (aX V0) (aA V0) (aB V0) 386 387 (by decide) rfl).symm
theorem val388_y (V0 : Valuation τ sig (Elt Ideal)) : val388 V0 (Proc.devRef .tc main_v7763) = yJ (aX V0) (aA V0) (aB V0) (aC V0) 388 := by
  refine ((step387_val (val387 V0)).2).trans ?_
  rw [val387_main_arg0 V0, val387_main_v3 V0, val387_main_arg2 V0, val387_main_arg3 V0, val387_h V0, val387_y V0]
  rw [← hI_at (aX V0) (aA V0) (aB V0) 386 387 (by decide) rfl]
  exact (yJ_at (aX V0) (aA V0) (aB V0) (aC V0) 387 388 (by decide) rfl).symm
/-- The contents after step 388. -/
def val389 (V0 : Valuation τ sig (Elt Ideal)) : Valuation τ sig (Elt Ideal) := after (stepOps388 (F := Ideal)) (val388 V0)
theorem val389_main_arg0 (V0 : Valuation τ sig (Elt Ideal)) : val389 V0 (Proc.devRef .tc main_arg0) = aX V0 :=
  (after_keep _ 10 stepOps388_ok main_arg0 (by decide +kernel) (val388 V0)).trans (val388_main_arg0 V0)
theorem val389_main_arg1 (V0 : Valuation τ sig (Elt Ideal)) : val389 V0 (Proc.devRef .tc main_arg1) = aA V0 :=
  (after_keep _ 10 stepOps388_ok main_arg1 (by decide +kernel) (val388 V0)).trans (val388_main_arg1 V0)
theorem val389_main_arg2 (V0 : Valuation τ sig (Elt Ideal)) : val389 V0 (Proc.devRef .tc main_arg2) = aB V0 :=
  (after_keep _ 10 stepOps388_ok main_arg2 (by decide +kernel) (val388 V0)).trans (val388_main_arg2 V0)
theorem val389_main_arg3 (V0 : Valuation τ sig (Elt Ideal)) : val389 V0 (Proc.devRef .tc main_arg3) = aC V0 :=
  (after_keep _ 10 stepOps388_ok main_arg3 (by decide +kernel) (val388 V0)).trans (val388_main_arg3 V0)
theorem val389_main_v3 (V0 : Valuation τ sig (Elt Ideal)) : val389 V0 (Proc.devRef .tc main_v3) = decay (aA V0) :=
  (after_keep _ 10 stepOps388_ok main_v3 (by decide +kernel) (val388 V0)).trans (val388_main_v3 V0)
theorem val389_h (V0 : Valuation τ sig (Elt Ideal)) : val389 V0 (Proc.devRef .tc main_v7775) = hI (aX V0) (aA V0) (aB V0) 388 := by
  refine ((step388_val (val388 V0)).1).trans ?_
  rw [val388_main_arg0 V0, val388_main_v3 V0, val388_main_arg2 V0, val388_h V0]
  exact (hI_at (aX V0) (aA V0) (aB V0) 387 388 (by decide) rfl).symm
theorem val389_y (V0 : Valuation τ sig (Elt Ideal)) : val389 V0 (Proc.devRef .tc main_v7783) = yJ (aX V0) (aA V0) (aB V0) (aC V0) 389 := by
  refine ((step388_val (val388 V0)).2).trans ?_
  rw [val388_main_arg0 V0, val388_main_v3 V0, val388_main_arg2 V0, val388_main_arg3 V0, val388_h V0, val388_y V0]
  rw [← hI_at (aX V0) (aA V0) (aB V0) 387 388 (by decide) rfl]
  exact (yJ_at (aX V0) (aA V0) (aB V0) (aC V0) 388 389 (by decide) rfl).symm
/-- The contents after step 389. -/
def val390 (V0 : Valuation τ sig (Elt Ideal)) : Valuation τ sig (Elt Ideal) := after (stepOps389 (F := Ideal)) (val389 V0)
theorem val390_main_arg0 (V0 : Valuation τ sig (Elt Ideal)) : val390 V0 (Proc.devRef .tc main_arg0) = aX V0 :=
  (after_keep _ 10 stepOps389_ok main_arg0 (by decide +kernel) (val389 V0)).trans (val389_main_arg0 V0)
theorem val390_main_arg1 (V0 : Valuation τ sig (Elt Ideal)) : val390 V0 (Proc.devRef .tc main_arg1) = aA V0 :=
  (after_keep _ 10 stepOps389_ok main_arg1 (by decide +kernel) (val389 V0)).trans (val389_main_arg1 V0)
theorem val390_main_arg2 (V0 : Valuation τ sig (Elt Ideal)) : val390 V0 (Proc.devRef .tc main_arg2) = aB V0 :=
  (after_keep _ 10 stepOps389_ok main_arg2 (by decide +kernel) (val389 V0)).trans (val389_main_arg2 V0)
theorem val390_main_arg3 (V0 : Valuation τ sig (Elt Ideal)) : val390 V0 (Proc.devRef .tc main_arg3) = aC V0 :=
  (after_keep _ 10 stepOps389_ok main_arg3 (by decide +kernel) (val389 V0)).trans (val389_main_arg3 V0)
theorem val390_main_v3 (V0 : Valuation τ sig (Elt Ideal)) : val390 V0 (Proc.devRef .tc main_v3) = decay (aA V0) :=
  (after_keep _ 10 stepOps389_ok main_v3 (by decide +kernel) (val389 V0)).trans (val389_main_v3 V0)
theorem val390_h (V0 : Valuation τ sig (Elt Ideal)) : val390 V0 (Proc.devRef .tc main_v7795) = hI (aX V0) (aA V0) (aB V0) 389 := by
  refine ((step389_val (val389 V0)).1).trans ?_
  rw [val389_main_arg0 V0, val389_main_v3 V0, val389_main_arg2 V0, val389_h V0]
  exact (hI_at (aX V0) (aA V0) (aB V0) 388 389 (by decide) rfl).symm
theorem val390_y (V0 : Valuation τ sig (Elt Ideal)) : val390 V0 (Proc.devRef .tc main_v7803) = yJ (aX V0) (aA V0) (aB V0) (aC V0) 390 := by
  refine ((step389_val (val389 V0)).2).trans ?_
  rw [val389_main_arg0 V0, val389_main_v3 V0, val389_main_arg2 V0, val389_main_arg3 V0, val389_h V0, val389_y V0]
  rw [← hI_at (aX V0) (aA V0) (aB V0) 388 389 (by decide) rfl]
  exact (yJ_at (aX V0) (aA V0) (aB V0) (aC V0) 389 390 (by decide) rfl).symm
/-- The contents after step 390. -/
def val391 (V0 : Valuation τ sig (Elt Ideal)) : Valuation τ sig (Elt Ideal) := after (stepOps390 (F := Ideal)) (val390 V0)
theorem val391_main_arg0 (V0 : Valuation τ sig (Elt Ideal)) : val391 V0 (Proc.devRef .tc main_arg0) = aX V0 :=
  (after_keep _ 10 stepOps390_ok main_arg0 (by decide +kernel) (val390 V0)).trans (val390_main_arg0 V0)
theorem val391_main_arg1 (V0 : Valuation τ sig (Elt Ideal)) : val391 V0 (Proc.devRef .tc main_arg1) = aA V0 :=
  (after_keep _ 10 stepOps390_ok main_arg1 (by decide +kernel) (val390 V0)).trans (val390_main_arg1 V0)
theorem val391_main_arg2 (V0 : Valuation τ sig (Elt Ideal)) : val391 V0 (Proc.devRef .tc main_arg2) = aB V0 :=
  (after_keep _ 10 stepOps390_ok main_arg2 (by decide +kernel) (val390 V0)).trans (val390_main_arg2 V0)
theorem val391_main_arg3 (V0 : Valuation τ sig (Elt Ideal)) : val391 V0 (Proc.devRef .tc main_arg3) = aC V0 :=
  (after_keep _ 10 stepOps390_ok main_arg3 (by decide +kernel) (val390 V0)).trans (val390_main_arg3 V0)
theorem val391_main_v3 (V0 : Valuation τ sig (Elt Ideal)) : val391 V0 (Proc.devRef .tc main_v3) = decay (aA V0) :=
  (after_keep _ 10 stepOps390_ok main_v3 (by decide +kernel) (val390 V0)).trans (val390_main_v3 V0)
theorem val391_h (V0 : Valuation τ sig (Elt Ideal)) : val391 V0 (Proc.devRef .tc main_v7815) = hI (aX V0) (aA V0) (aB V0) 390 := by
  refine ((step390_val (val390 V0)).1).trans ?_
  rw [val390_main_arg0 V0, val390_main_v3 V0, val390_main_arg2 V0, val390_h V0]
  exact (hI_at (aX V0) (aA V0) (aB V0) 389 390 (by decide) rfl).symm
theorem val391_y (V0 : Valuation τ sig (Elt Ideal)) : val391 V0 (Proc.devRef .tc main_v7823) = yJ (aX V0) (aA V0) (aB V0) (aC V0) 391 := by
  refine ((step390_val (val390 V0)).2).trans ?_
  rw [val390_main_arg0 V0, val390_main_v3 V0, val390_main_arg2 V0, val390_main_arg3 V0, val390_h V0, val390_y V0]
  rw [← hI_at (aX V0) (aA V0) (aB V0) 389 390 (by decide) rfl]
  exact (yJ_at (aX V0) (aA V0) (aB V0) (aC V0) 390 391 (by decide) rfl).symm
/-- The contents after step 391. -/
def val392 (V0 : Valuation τ sig (Elt Ideal)) : Valuation τ sig (Elt Ideal) := after (stepOps391 (F := Ideal)) (val391 V0)
theorem val392_main_arg0 (V0 : Valuation τ sig (Elt Ideal)) : val392 V0 (Proc.devRef .tc main_arg0) = aX V0 :=
  (after_keep _ 10 stepOps391_ok main_arg0 (by decide +kernel) (val391 V0)).trans (val391_main_arg0 V0)
theorem val392_main_arg1 (V0 : Valuation τ sig (Elt Ideal)) : val392 V0 (Proc.devRef .tc main_arg1) = aA V0 :=
  (after_keep _ 10 stepOps391_ok main_arg1 (by decide +kernel) (val391 V0)).trans (val391_main_arg1 V0)
theorem val392_main_arg2 (V0 : Valuation τ sig (Elt Ideal)) : val392 V0 (Proc.devRef .tc main_arg2) = aB V0 :=
  (after_keep _ 10 stepOps391_ok main_arg2 (by decide +kernel) (val391 V0)).trans (val391_main_arg2 V0)
theorem val392_main_arg3 (V0 : Valuation τ sig (Elt Ideal)) : val392 V0 (Proc.devRef .tc main_arg3) = aC V0 :=
  (after_keep _ 10 stepOps391_ok main_arg3 (by decide +kernel) (val391 V0)).trans (val391_main_arg3 V0)
theorem val392_main_v3 (V0 : Valuation τ sig (Elt Ideal)) : val392 V0 (Proc.devRef .tc main_v3) = decay (aA V0) :=
  (after_keep _ 10 stepOps391_ok main_v3 (by decide +kernel) (val391 V0)).trans (val391_main_v3 V0)
theorem val392_h (V0 : Valuation τ sig (Elt Ideal)) : val392 V0 (Proc.devRef .tc main_v7835) = hI (aX V0) (aA V0) (aB V0) 391 := by
  refine ((step391_val (val391 V0)).1).trans ?_
  rw [val391_main_arg0 V0, val391_main_v3 V0, val391_main_arg2 V0, val391_h V0]
  exact (hI_at (aX V0) (aA V0) (aB V0) 390 391 (by decide) rfl).symm
theorem val392_y (V0 : Valuation τ sig (Elt Ideal)) : val392 V0 (Proc.devRef .tc main_v7843) = yJ (aX V0) (aA V0) (aB V0) (aC V0) 392 := by
  refine ((step391_val (val391 V0)).2).trans ?_
  rw [val391_main_arg0 V0, val391_main_v3 V0, val391_main_arg2 V0, val391_main_arg3 V0, val391_h V0, val391_y V0]
  rw [← hI_at (aX V0) (aA V0) (aB V0) 390 391 (by decide) rfl]
  exact (yJ_at (aX V0) (aA V0) (aB V0) (aC V0) 391 392 (by decide) rfl).symm
/-- The contents after step 392. -/
def val393 (V0 : Valuation τ sig (Elt Ideal)) : Valuation τ sig (Elt Ideal) := after (stepOps392 (F := Ideal)) (val392 V0)
theorem val393_main_arg0 (V0 : Valuation τ sig (Elt Ideal)) : val393 V0 (Proc.devRef .tc main_arg0) = aX V0 :=
  (after_keep _ 10 stepOps392_ok main_arg0 (by decide +kernel) (val392 V0)).trans (val392_main_arg0 V0)
theorem val393_main_arg1 (V0 : Valuation τ sig (Elt Ideal)) : val393 V0 (Proc.devRef .tc main_arg1) = aA V0 :=
  (after_keep _ 10 stepOps392_ok main_arg1 (by decide +kernel) (val392 V0)).trans (val392_main_arg1 V0)
theorem val393_main_arg2 (V0 : Valuation τ sig (Elt Ideal)) : val393 V0 (Proc.devRef .tc main_arg2) = aB V0 :=
  (after_keep _ 10 stepOps392_ok main_arg2 (by decide +kernel) (val392 V0)).trans (val392_main_arg2 V0)
theorem val393_main_arg3 (V0 : Valuation τ sig (Elt Ideal)) : val393 V0 (Proc.devRef .tc main_arg3) = aC V0 :=
  (after_keep _ 10 stepOps392_ok main_arg3 (by decide +kernel) (val392 V0)).trans (val392_main_arg3 V0)
theorem val393_main_v3 (V0 : Valuation τ sig (Elt Ideal)) : val393 V0 (Proc.devRef .tc main_v3) = decay (aA V0) :=
  (after_keep _ 10 stepOps392_ok main_v3 (by decide +kernel) (val392 V0)).trans (val392_main_v3 V0)
theorem val393_h (V0 : Valuation τ sig (Elt Ideal)) : val393 V0 (Proc.devRef .tc main_v7855) = hI (aX V0) (aA V0) (aB V0) 392 := by
  refine ((step392_val (val392 V0)).1).trans ?_
  rw [val392_main_arg0 V0, val392_main_v3 V0, val392_main_arg2 V0, val392_h V0]
  exact (hI_at (aX V0) (aA V0) (aB V0) 391 392 (by decide) rfl).symm
theorem val393_y (V0 : Valuation τ sig (Elt Ideal)) : val393 V0 (Proc.devRef .tc main_v7863) = yJ (aX V0) (aA V0) (aB V0) (aC V0) 393 := by
  refine ((step392_val (val392 V0)).2).trans ?_
  rw [val392_main_arg0 V0, val392_main_v3 V0, val392_main_arg2 V0, val392_main_arg3 V0, val392_h V0, val392_y V0]
  rw [← hI_at (aX V0) (aA V0) (aB V0) 391 392 (by decide) rfl]
  exact (yJ_at (aX V0) (aA V0) (aB V0) (aC V0) 392 393 (by decide) rfl).symm
/-- The contents after step 393. -/
def val394 (V0 : Valuation τ sig (Elt Ideal)) : Valuation τ sig (Elt Ideal) := after (stepOps393 (F := Ideal)) (val393 V0)
theorem val394_main_arg0 (V0 : Valuation τ sig (Elt Ideal)) : val394 V0 (Proc.devRef .tc main_arg0) = aX V0 :=
  (after_keep _ 10 stepOps393_ok main_arg0 (by decide +kernel) (val393 V0)).trans (val393_main_arg0 V0)
theorem val394_main_arg1 (V0 : Valuation τ sig (Elt Ideal)) : val394 V0 (Proc.devRef .tc main_arg1) = aA V0 :=
  (after_keep _ 10 stepOps393_ok main_arg1 (by decide +kernel) (val393 V0)).trans (val393_main_arg1 V0)
theorem val394_main_arg2 (V0 : Valuation τ sig (Elt Ideal)) : val394 V0 (Proc.devRef .tc main_arg2) = aB V0 :=
  (after_keep _ 10 stepOps393_ok main_arg2 (by decide +kernel) (val393 V0)).trans (val393_main_arg2 V0)
theorem val394_main_arg3 (V0 : Valuation τ sig (Elt Ideal)) : val394 V0 (Proc.devRef .tc main_arg3) = aC V0 :=
  (after_keep _ 10 stepOps393_ok main_arg3 (by decide +kernel) (val393 V0)).trans (val393_main_arg3 V0)
theorem val394_main_v3 (V0 : Valuation τ sig (Elt Ideal)) : val394 V0 (Proc.devRef .tc main_v3) = decay (aA V0) :=
  (after_keep _ 10 stepOps393_ok main_v3 (by decide +kernel) (val393 V0)).trans (val393_main_v3 V0)
theorem val394_h (V0 : Valuation τ sig (Elt Ideal)) : val394 V0 (Proc.devRef .tc main_v7875) = hI (aX V0) (aA V0) (aB V0) 393 := by
  refine ((step393_val (val393 V0)).1).trans ?_
  rw [val393_main_arg0 V0, val393_main_v3 V0, val393_main_arg2 V0, val393_h V0]
  exact (hI_at (aX V0) (aA V0) (aB V0) 392 393 (by decide) rfl).symm
theorem val394_y (V0 : Valuation τ sig (Elt Ideal)) : val394 V0 (Proc.devRef .tc main_v7883) = yJ (aX V0) (aA V0) (aB V0) (aC V0) 394 := by
  refine ((step393_val (val393 V0)).2).trans ?_
  rw [val393_main_arg0 V0, val393_main_v3 V0, val393_main_arg2 V0, val393_main_arg3 V0, val393_h V0, val393_y V0]
  rw [← hI_at (aX V0) (aA V0) (aB V0) 392 393 (by decide) rfl]
  exact (yJ_at (aX V0) (aA V0) (aB V0) (aC V0) 393 394 (by decide) rfl).symm
/-- The contents after step 394. -/
def val395 (V0 : Valuation τ sig (Elt Ideal)) : Valuation τ sig (Elt Ideal) := after (stepOps394 (F := Ideal)) (val394 V0)
theorem val395_main_arg0 (V0 : Valuation τ sig (Elt Ideal)) : val395 V0 (Proc.devRef .tc main_arg0) = aX V0 :=
  (after_keep _ 10 stepOps394_ok main_arg0 (by decide +kernel) (val394 V0)).trans (val394_main_arg0 V0)
theorem val395_main_arg1 (V0 : Valuation τ sig (Elt Ideal)) : val395 V0 (Proc.devRef .tc main_arg1) = aA V0 :=
  (after_keep _ 10 stepOps394_ok main_arg1 (by decide +kernel) (val394 V0)).trans (val394_main_arg1 V0)
theorem val395_main_arg2 (V0 : Valuation τ sig (Elt Ideal)) : val395 V0 (Proc.devRef .tc main_arg2) = aB V0 :=
  (after_keep _ 10 stepOps394_ok main_arg2 (by decide +kernel) (val394 V0)).trans (val394_main_arg2 V0)
theorem val395_main_arg3 (V0 : Valuation τ sig (Elt Ideal)) : val395 V0 (Proc.devRef .tc main_arg3) = aC V0 :=
  (after_keep _ 10 stepOps394_ok main_arg3 (by decide +kernel) (val394 V0)).trans (val394_main_arg3 V0)
theorem val395_main_v3 (V0 : Valuation τ sig (Elt Ideal)) : val395 V0 (Proc.devRef .tc main_v3) = decay (aA V0) :=
  (after_keep _ 10 stepOps394_ok main_v3 (by decide +kernel) (val394 V0)).trans (val394_main_v3 V0)
theorem val395_h (V0 : Valuation τ sig (Elt Ideal)) : val395 V0 (Proc.devRef .tc main_v7895) = hI (aX V0) (aA V0) (aB V0) 394 := by
  refine ((step394_val (val394 V0)).1).trans ?_
  rw [val394_main_arg0 V0, val394_main_v3 V0, val394_main_arg2 V0, val394_h V0]
  exact (hI_at (aX V0) (aA V0) (aB V0) 393 394 (by decide) rfl).symm
theorem val395_y (V0 : Valuation τ sig (Elt Ideal)) : val395 V0 (Proc.devRef .tc main_v7903) = yJ (aX V0) (aA V0) (aB V0) (aC V0) 395 := by
  refine ((step394_val (val394 V0)).2).trans ?_
  rw [val394_main_arg0 V0, val394_main_v3 V0, val394_main_arg2 V0, val394_main_arg3 V0, val394_h V0, val394_y V0]
  rw [← hI_at (aX V0) (aA V0) (aB V0) 393 394 (by decide) rfl]
  exact (yJ_at (aX V0) (aA V0) (aB V0) (aC V0) 394 395 (by decide) rfl).symm
/-- The contents after step 395. -/
def val396 (V0 : Valuation τ sig (Elt Ideal)) : Valuation τ sig (Elt Ideal) := after (stepOps395 (F := Ideal)) (val395 V0)
theorem val396_main_arg0 (V0 : Valuation τ sig (Elt Ideal)) : val396 V0 (Proc.devRef .tc main_arg0) = aX V0 :=
  (after_keep _ 10 stepOps395_ok main_arg0 (by decide +kernel) (val395 V0)).trans (val395_main_arg0 V0)
theorem val396_main_arg1 (V0 : Valuation τ sig (Elt Ideal)) : val396 V0 (Proc.devRef .tc main_arg1) = aA V0 :=
  (after_keep _ 10 stepOps395_ok main_arg1 (by decide +kernel) (val395 V0)).trans (val395_main_arg1 V0)
theorem val396_main_arg2 (V0 : Valuation τ sig (Elt Ideal)) : val396 V0 (Proc.devRef .tc main_arg2) = aB V0 :=
  (after_keep _ 10 stepOps395_ok main_arg2 (by decide +kernel) (val395 V0)).trans (val395_main_arg2 V0)
theorem val396_main_arg3 (V0 : Valuation τ sig (Elt Ideal)) : val396 V0 (Proc.devRef .tc main_arg3) = aC V0 :=
  (after_keep _ 10 stepOps395_ok main_arg3 (by decide +kernel) (val395 V0)).trans (val395_main_arg3 V0)
theorem val396_main_v3 (V0 : Valuation τ sig (Elt Ideal)) : val396 V0 (Proc.devRef .tc main_v3) = decay (aA V0) :=
  (after_keep _ 10 stepOps395_ok main_v3 (by decide +kernel) (val395 V0)).trans (val395_main_v3 V0)
theorem val396_h (V0 : Valuation τ sig (Elt Ideal)) : val396 V0 (Proc.devRef .tc main_v7915) = hI (aX V0) (aA V0) (aB V0) 395 := by
  refine ((step395_val (val395 V0)).1).trans ?_
  rw [val395_main_arg0 V0, val395_main_v3 V0, val395_main_arg2 V0, val395_h V0]
  exact (hI_at (aX V0) (aA V0) (aB V0) 394 395 (by decide) rfl).symm
theorem val396_y (V0 : Valuation τ sig (Elt Ideal)) : val396 V0 (Proc.devRef .tc main_v7923) = yJ (aX V0) (aA V0) (aB V0) (aC V0) 396 := by
  refine ((step395_val (val395 V0)).2).trans ?_
  rw [val395_main_arg0 V0, val395_main_v3 V0, val395_main_arg2 V0, val395_main_arg3 V0, val395_h V0, val395_y V0]
  rw [← hI_at (aX V0) (aA V0) (aB V0) 394 395 (by decide) rfl]
  exact (yJ_at (aX V0) (aA V0) (aB V0) (aC V0) 395 396 (by decide) rfl).symm
/-- The contents after step 396. -/
def val397 (V0 : Valuation τ sig (Elt Ideal)) : Valuation τ sig (Elt Ideal) := after (stepOps396 (F := Ideal)) (val396 V0)
theorem val397_main_arg0 (V0 : Valuation τ sig (Elt Ideal)) : val397 V0 (Proc.devRef .tc main_arg0) = aX V0 :=
  (after_keep _ 10 stepOps396_ok main_arg0 (by decide +kernel) (val396 V0)).trans (val396_main_arg0 V0)
theorem val397_main_arg1 (V0 : Valuation τ sig (Elt Ideal)) : val397 V0 (Proc.devRef .tc main_arg1) = aA V0 :=
  (after_keep _ 10 stepOps396_ok main_arg1 (by decide +kernel) (val396 V0)).trans (val396_main_arg1 V0)
theorem val397_main_arg2 (V0 : Valuation τ sig (Elt Ideal)) : val397 V0 (Proc.devRef .tc main_arg2) = aB V0 :=
  (after_keep _ 10 stepOps396_ok main_arg2 (by decide +kernel) (val396 V0)).trans (val396_main_arg2 V0)
theorem val397_main_arg3 (V0 : Valuation τ sig (Elt Ideal)) : val397 V0 (Proc.devRef .tc main_arg3) = aC V0 :=
  (after_keep _ 10 stepOps396_ok main_arg3 (by decide +kernel) (val396 V0)).trans (val396_main_arg3 V0)
theorem val397_main_v3 (V0 : Valuation τ sig (Elt Ideal)) : val397 V0 (Proc.devRef .tc main_v3) = decay (aA V0) :=
  (after_keep _ 10 stepOps396_ok main_v3 (by decide +kernel) (val396 V0)).trans (val396_main_v3 V0)
theorem val397_h (V0 : Valuation τ sig (Elt Ideal)) : val397 V0 (Proc.devRef .tc main_v7935) = hI (aX V0) (aA V0) (aB V0) 396 := by
  refine ((step396_val (val396 V0)).1).trans ?_
  rw [val396_main_arg0 V0, val396_main_v3 V0, val396_main_arg2 V0, val396_h V0]
  exact (hI_at (aX V0) (aA V0) (aB V0) 395 396 (by decide) rfl).symm
theorem val397_y (V0 : Valuation τ sig (Elt Ideal)) : val397 V0 (Proc.devRef .tc main_v7943) = yJ (aX V0) (aA V0) (aB V0) (aC V0) 397 := by
  refine ((step396_val (val396 V0)).2).trans ?_
  rw [val396_main_arg0 V0, val396_main_v3 V0, val396_main_arg2 V0, val396_main_arg3 V0, val396_h V0, val396_y V0]
  rw [← hI_at (aX V0) (aA V0) (aB V0) 395 396 (by decide) rfl]
  exact (yJ_at (aX V0) (aA V0) (aB V0) (aC V0) 396 397 (by decide) rfl).symm
/-- The contents after step 397. -/
def val398 (V0 : Valuation τ sig (Elt Ideal)) : Valuation τ sig (Elt Ideal) := after (stepOps397 (F := Ideal)) (val397 V0)
theorem val398_main_arg0 (V0 : Valuation τ sig (Elt Ideal)) : val398 V0 (Proc.devRef .tc main_arg0) = aX V0 :=
  (after_keep _ 10 stepOps397_ok main_arg0 (by decide +kernel) (val397 V0)).trans (val397_main_arg0 V0)
theorem val398_main_arg1 (V0 : Valuation τ sig (Elt Ideal)) : val398 V0 (Proc.devRef .tc main_arg1) = aA V0 :=
  (after_keep _ 10 stepOps397_ok main_arg1 (by decide +kernel) (val397 V0)).trans (val397_main_arg1 V0)
theorem val398_main_arg2 (V0 : Valuation τ sig (Elt Ideal)) : val398 V0 (Proc.devRef .tc main_arg2) = aB V0 :=
  (after_keep _ 10 stepOps397_ok main_arg2 (by decide +kernel) (val397 V0)).trans (val397_main_arg2 V0)
theorem val398_main_arg3 (V0 : Valuation τ sig (Elt Ideal)) : val398 V0 (Proc.devRef .tc main_arg3) = aC V0 :=
  (after_keep _ 10 stepOps397_ok main_arg3 (by decide +kernel) (val397 V0)).trans (val397_main_arg3 V0)
theorem val398_main_v3 (V0 : Valuation τ sig (Elt Ideal)) : val398 V0 (Proc.devRef .tc main_v3) = decay (aA V0) :=
  (after_keep _ 10 stepOps397_ok main_v3 (by decide +kernel) (val397 V0)).trans (val397_main_v3 V0)
theorem val398_h (V0 : Valuation τ sig (Elt Ideal)) : val398 V0 (Proc.devRef .tc main_v7955) = hI (aX V0) (aA V0) (aB V0) 397 := by
  refine ((step397_val (val397 V0)).1).trans ?_
  rw [val397_main_arg0 V0, val397_main_v3 V0, val397_main_arg2 V0, val397_h V0]
  exact (hI_at (aX V0) (aA V0) (aB V0) 396 397 (by decide) rfl).symm
theorem val398_y (V0 : Valuation τ sig (Elt Ideal)) : val398 V0 (Proc.devRef .tc main_v7963) = yJ (aX V0) (aA V0) (aB V0) (aC V0) 398 := by
  refine ((step397_val (val397 V0)).2).trans ?_
  rw [val397_main_arg0 V0, val397_main_v3 V0, val397_main_arg2 V0, val397_main_arg3 V0, val397_h V0, val397_y V0]
  rw [← hI_at (aX V0) (aA V0) (aB V0) 396 397 (by decide) rfl]
  exact (yJ_at (aX V0) (aA V0) (aB V0) (aC V0) 397 398 (by decide) rfl).symm
/-- The contents after step 398. -/
def val399 (V0 : Valuation τ sig (Elt Ideal)) : Valuation τ sig (Elt Ideal) := after (stepOps398 (F := Ideal)) (val398 V0)
theorem val399_main_arg0 (V0 : Valuation τ sig (Elt Ideal)) : val399 V0 (Proc.devRef .tc main_arg0) = aX V0 :=
  (after_keep _ 10 stepOps398_ok main_arg0 (by decide +kernel) (val398 V0)).trans (val398_main_arg0 V0)
theorem val399_main_arg1 (V0 : Valuation τ sig (Elt Ideal)) : val399 V0 (Proc.devRef .tc main_arg1) = aA V0 :=
  (after_keep _ 10 stepOps398_ok main_arg1 (by decide +kernel) (val398 V0)).trans (val398_main_arg1 V0)
theorem val399_main_arg2 (V0 : Valuation τ sig (Elt Ideal)) : val399 V0 (Proc.devRef .tc main_arg2) = aB V0 :=
  (after_keep _ 10 stepOps398_ok main_arg2 (by decide +kernel) (val398 V0)).trans (val398_main_arg2 V0)
theorem val399_main_arg3 (V0 : Valuation τ sig (Elt Ideal)) : val399 V0 (Proc.devRef .tc main_arg3) = aC V0 :=
  (after_keep _ 10 stepOps398_ok main_arg3 (by decide +kernel) (val398 V0)).trans (val398_main_arg3 V0)
theorem val399_main_v3 (V0 : Valuation τ sig (Elt Ideal)) : val399 V0 (Proc.devRef .tc main_v3) = decay (aA V0) :=
  (after_keep _ 10 stepOps398_ok main_v3 (by decide +kernel) (val398 V0)).trans (val398_main_v3 V0)
theorem val399_h (V0 : Valuation τ sig (Elt Ideal)) : val399 V0 (Proc.devRef .tc main_v7975) = hI (aX V0) (aA V0) (aB V0) 398 := by
  refine ((step398_val (val398 V0)).1).trans ?_
  rw [val398_main_arg0 V0, val398_main_v3 V0, val398_main_arg2 V0, val398_h V0]
  exact (hI_at (aX V0) (aA V0) (aB V0) 397 398 (by decide) rfl).symm
theorem val399_y (V0 : Valuation τ sig (Elt Ideal)) : val399 V0 (Proc.devRef .tc main_v7983) = yJ (aX V0) (aA V0) (aB V0) (aC V0) 399 := by
  refine ((step398_val (val398 V0)).2).trans ?_
  rw [val398_main_arg0 V0, val398_main_v3 V0, val398_main_arg2 V0, val398_main_arg3 V0, val398_h V0, val398_y V0]
  rw [← hI_at (aX V0) (aA V0) (aB V0) 397 398 (by decide) rfl]
  exact (yJ_at (aX V0) (aA V0) (aB V0) (aC V0) 398 399 (by decide) rfl).symm
/-- The contents after step 399. -/
def val400 (V0 : Valuation τ sig (Elt Ideal)) : Valuation τ sig (Elt Ideal) := after (stepOps399 (F := Ideal)) (val399 V0)
theorem val400_main_arg0 (V0 : Valuation τ sig (Elt Ideal)) : val400 V0 (Proc.devRef .tc main_arg0) = aX V0 :=
  (after_keep _ 10 stepOps399_ok main_arg0 (by decide +kernel) (val399 V0)).trans (val399_main_arg0 V0)
theorem val400_main_arg1 (V0 : Valuation τ sig (Elt Ideal)) : val400 V0 (Proc.devRef .tc main_arg1) = aA V0 :=
  (after_keep _ 10 stepOps399_ok main_arg1 (by decide +kernel) (val399 V0)).trans (val399_main_arg1 V0)
theorem val400_main_arg2 (V0 : Valuation τ sig (Elt Ideal)) : val400 V0 (Proc.devRef .tc main_arg2) = aB V0 :=
  (after_keep _ 10 stepOps399_ok main_arg2 (by decide +kernel) (val399 V0)).trans (val399_main_arg2 V0)
theorem val400_main_arg3 (V0 : Valuation τ sig (Elt Ideal)) : val400 V0 (Proc.devRef .tc main_arg3) = aC V0 :=
  (after_keep _ 10 stepOps399_ok main_arg3 (by decide +kernel) (val399 V0)).trans (val399_main_arg3 V0)
theorem val400_main_v3 (V0 : Valuation τ sig (Elt Ideal)) : val400 V0 (Proc.devRef .tc main_v3) = decay (aA V0) :=
  (after_keep _ 10 stepOps399_ok main_v3 (by decide +kernel) (val399 V0)).trans (val399_main_v3 V0)
theorem val400_h (V0 : Valuation τ sig (Elt Ideal)) : val400 V0 (Proc.devRef .tc main_v7995) = hI (aX V0) (aA V0) (aB V0) 399 := by
  refine ((step399_val (val399 V0)).1).trans ?_
  rw [val399_main_arg0 V0, val399_main_v3 V0, val399_main_arg2 V0, val399_h V0]
  exact (hI_at (aX V0) (aA V0) (aB V0) 398 399 (by decide) rfl).symm
theorem val400_y (V0 : Valuation τ sig (Elt Ideal)) : val400 V0 (Proc.devRef .tc main_v8003) = yJ (aX V0) (aA V0) (aB V0) (aC V0) 400 := by
  refine ((step399_val (val399 V0)).2).trans ?_
  rw [val399_main_arg0 V0, val399_main_v3 V0, val399_main_arg2 V0, val399_main_arg3 V0, val399_h V0, val399_y V0]
  rw [← hI_at (aX V0) (aA V0) (aB V0) 398 399 (by decide) rfl]
  exact (yJ_at (aX V0) (aA V0) (aB V0) (aC V0) 399 400 (by decide) rfl).symm
/-- The contents after step 400. -/
def val401 (V0 : Valuation τ sig (Elt Ideal)) : Valuation τ sig (Elt Ideal) := after (stepOps400 (F := Ideal)) (val400 V0)
theorem val401_main_arg0 (V0 : Valuation τ sig (Elt Ideal)) : val401 V0 (Proc.devRef .tc main_arg0) = aX V0 :=
  (after_keep _ 10 stepOps400_ok main_arg0 (by decide +kernel) (val400 V0)).trans (val400_main_arg0 V0)
theorem val401_main_arg1 (V0 : Valuation τ sig (Elt Ideal)) : val401 V0 (Proc.devRef .tc main_arg1) = aA V0 :=
  (after_keep _ 10 stepOps400_ok main_arg1 (by decide +kernel) (val400 V0)).trans (val400_main_arg1 V0)
theorem val401_main_arg2 (V0 : Valuation τ sig (Elt Ideal)) : val401 V0 (Proc.devRef .tc main_arg2) = aB V0 :=
  (after_keep _ 10 stepOps400_ok main_arg2 (by decide +kernel) (val400 V0)).trans (val400_main_arg2 V0)
theorem val401_main_arg3 (V0 : Valuation τ sig (Elt Ideal)) : val401 V0 (Proc.devRef .tc main_arg3) = aC V0 :=
  (after_keep _ 10 stepOps400_ok main_arg3 (by decide +kernel) (val400 V0)).trans (val400_main_arg3 V0)
theorem val401_main_v3 (V0 : Valuation τ sig (Elt Ideal)) : val401 V0 (Proc.devRef .tc main_v3) = decay (aA V0) :=
  (after_keep _ 10 stepOps400_ok main_v3 (by decide +kernel) (val400 V0)).trans (val400_main_v3 V0)
theorem val401_h (V0 : Valuation τ sig (Elt Ideal)) : val401 V0 (Proc.devRef .tc main_v8015) = hI (aX V0) (aA V0) (aB V0) 400 := by
  refine ((step400_val (val400 V0)).1).trans ?_
  rw [val400_main_arg0 V0, val400_main_v3 V0, val400_main_arg2 V0, val400_h V0]
  exact (hI_at (aX V0) (aA V0) (aB V0) 399 400 (by decide) rfl).symm
theorem val401_y (V0 : Valuation τ sig (Elt Ideal)) : val401 V0 (Proc.devRef .tc main_v8023) = yJ (aX V0) (aA V0) (aB V0) (aC V0) 401 := by
  refine ((step400_val (val400 V0)).2).trans ?_
  rw [val400_main_arg0 V0, val400_main_v3 V0, val400_main_arg2 V0, val400_main_arg3 V0, val400_h V0, val400_y V0]
  rw [← hI_at (aX V0) (aA V0) (aB V0) 399 400 (by decide) rfl]
  exact (yJ_at (aX V0) (aA V0) (aB V0) (aC V0) 400 401 (by decide) rfl).symm
/-- The contents after step 401. -/
def val402 (V0 : Valuation τ sig (Elt Ideal)) : Valuation τ sig (Elt Ideal) := after (stepOps401 (F := Ideal)) (val401 V0)
theorem val402_main_arg0 (V0 : Valuation τ sig (Elt Ideal)) : val402 V0 (Proc.devRef .tc main_arg0) = aX V0 :=
  (after_keep _ 10 stepOps401_ok main_arg0 (by decide +kernel) (val401 V0)).trans (val401_main_arg0 V0)
theorem val402_main_arg1 (V0 : Valuation τ sig (Elt Ideal)) : val402 V0 (Proc.devRef .tc main_arg1) = aA V0 :=
  (after_keep _ 10 stepOps401_ok main_arg1 (by decide +kernel) (val401 V0)).trans (val401_main_arg1 V0)
theorem val402_main_arg2 (V0 : Valuation τ sig (Elt Ideal)) : val402 V0 (Proc.devRef .tc main_arg2) = aB V0 :=
  (after_keep _ 10 stepOps401_ok main_arg2 (by decide +kernel) (val401 V0)).trans (val401_main_arg2 V0)
theorem val402_main_arg3 (V0 : Valuation τ sig (Elt Ideal)) : val402 V0 (Proc.devRef .tc main_arg3) = aC V0 :=
  (after_keep _ 10 stepOps401_ok main_arg3 (by decide +kernel) (val401 V0)).trans (val401_main_arg3 V0)
theorem val402_main_v3 (V0 : Valuation τ sig (Elt Ideal)) : val402 V0 (Proc.devRef .tc main_v3) = decay (aA V0) :=
  (after_keep _ 10 stepOps401_ok main_v3 (by decide +kernel) (val401 V0)).trans (val401_main_v3 V0)
theorem val402_h (V0 : Valuation τ sig (Elt Ideal)) : val402 V0 (Proc.devRef .tc main_v8035) = hI (aX V0) (aA V0) (aB V0) 401 := by
  refine ((step401_val (val401 V0)).1).trans ?_
  rw [val401_main_arg0 V0, val401_main_v3 V0, val401_main_arg2 V0, val401_h V0]
  exact (hI_at (aX V0) (aA V0) (aB V0) 400 401 (by decide) rfl).symm
theorem val402_y (V0 : Valuation τ sig (Elt Ideal)) : val402 V0 (Proc.devRef .tc main_v8043) = yJ (aX V0) (aA V0) (aB V0) (aC V0) 402 := by
  refine ((step401_val (val401 V0)).2).trans ?_
  rw [val401_main_arg0 V0, val401_main_v3 V0, val401_main_arg2 V0, val401_main_arg3 V0, val401_h V0, val401_y V0]
  rw [← hI_at (aX V0) (aA V0) (aB V0) 400 401 (by decide) rfl]
  exact (yJ_at (aX V0) (aA V0) (aB V0) (aC V0) 401 402 (by decide) rfl).symm
/-- The contents after step 402. -/
def val403 (V0 : Valuation τ sig (Elt Ideal)) : Valuation τ sig (Elt Ideal) := after (stepOps402 (F := Ideal)) (val402 V0)
theorem val403_main_arg0 (V0 : Valuation τ sig (Elt Ideal)) : val403 V0 (Proc.devRef .tc main_arg0) = aX V0 :=
  (after_keep _ 10 stepOps402_ok main_arg0 (by decide +kernel) (val402 V0)).trans (val402_main_arg0 V0)
theorem val403_main_arg1 (V0 : Valuation τ sig (Elt Ideal)) : val403 V0 (Proc.devRef .tc main_arg1) = aA V0 :=
  (after_keep _ 10 stepOps402_ok main_arg1 (by decide +kernel) (val402 V0)).trans (val402_main_arg1 V0)
theorem val403_main_arg2 (V0 : Valuation τ sig (Elt Ideal)) : val403 V0 (Proc.devRef .tc main_arg2) = aB V0 :=
  (after_keep _ 10 stepOps402_ok main_arg2 (by decide +kernel) (val402 V0)).trans (val402_main_arg2 V0)
theorem val403_main_arg3 (V0 : Valuation τ sig (Elt Ideal)) : val403 V0 (Proc.devRef .tc main_arg3) = aC V0 :=
  (after_keep _ 10 stepOps402_ok main_arg3 (by decide +kernel) (val402 V0)).trans (val402_main_arg3 V0)
theorem val403_main_v3 (V0 : Valuation τ sig (Elt Ideal)) : val403 V0 (Proc.devRef .tc main_v3) = decay (aA V0) :=
  (after_keep _ 10 stepOps402_ok main_v3 (by decide +kernel) (val402 V0)).trans (val402_main_v3 V0)
theorem val403_h (V0 : Valuation τ sig (Elt Ideal)) : val403 V0 (Proc.devRef .tc main_v8055) = hI (aX V0) (aA V0) (aB V0) 402 := by
  refine ((step402_val (val402 V0)).1).trans ?_
  rw [val402_main_arg0 V0, val402_main_v3 V0, val402_main_arg2 V0, val402_h V0]
  exact (hI_at (aX V0) (aA V0) (aB V0) 401 402 (by decide) rfl).symm
theorem val403_y (V0 : Valuation τ sig (Elt Ideal)) : val403 V0 (Proc.devRef .tc main_v8063) = yJ (aX V0) (aA V0) (aB V0) (aC V0) 403 := by
  refine ((step402_val (val402 V0)).2).trans ?_
  rw [val402_main_arg0 V0, val402_main_v3 V0, val402_main_arg2 V0, val402_main_arg3 V0, val402_h V0, val402_y V0]
  rw [← hI_at (aX V0) (aA V0) (aB V0) 401 402 (by decide) rfl]
  exact (yJ_at (aX V0) (aA V0) (aB V0) (aC V0) 402 403 (by decide) rfl).symm
/-- The contents after step 403. -/
def val404 (V0 : Valuation τ sig (Elt Ideal)) : Valuation τ sig (Elt Ideal) := after (stepOps403 (F := Ideal)) (val403 V0)
theorem val404_main_arg0 (V0 : Valuation τ sig (Elt Ideal)) : val404 V0 (Proc.devRef .tc main_arg0) = aX V0 :=
  (after_keep _ 10 stepOps403_ok main_arg0 (by decide +kernel) (val403 V0)).trans (val403_main_arg0 V0)
theorem val404_main_arg1 (V0 : Valuation τ sig (Elt Ideal)) : val404 V0 (Proc.devRef .tc main_arg1) = aA V0 :=
  (after_keep _ 10 stepOps403_ok main_arg1 (by decide +kernel) (val403 V0)).trans (val403_main_arg1 V0)
theorem val404_main_arg2 (V0 : Valuation τ sig (Elt Ideal)) : val404 V0 (Proc.devRef .tc main_arg2) = aB V0 :=
  (after_keep _ 10 stepOps403_ok main_arg2 (by decide +kernel) (val403 V0)).trans (val403_main_arg2 V0)
theorem val404_main_arg3 (V0 : Valuation τ sig (Elt Ideal)) : val404 V0 (Proc.devRef .tc main_arg3) = aC V0 :=
  (after_keep _ 10 stepOps403_ok main_arg3 (by decide +kernel) (val403 V0)).trans (val403_main_arg3 V0)
theorem val404_main_v3 (V0 : Valuation τ sig (Elt Ideal)) : val404 V0 (Proc.devRef .tc main_v3) = decay (aA V0) :=
  (after_keep _ 10 stepOps403_ok main_v3 (by decide +kernel) (val403 V0)).trans (val403_main_v3 V0)
theorem val404_h (V0 : Valuation τ sig (Elt Ideal)) : val404 V0 (Proc.devRef .tc main_v8075) = hI (aX V0) (aA V0) (aB V0) 403 := by
  refine ((step403_val (val403 V0)).1).trans ?_
  rw [val403_main_arg0 V0, val403_main_v3 V0, val403_main_arg2 V0, val403_h V0]
  exact (hI_at (aX V0) (aA V0) (aB V0) 402 403 (by decide) rfl).symm
theorem val404_y (V0 : Valuation τ sig (Elt Ideal)) : val404 V0 (Proc.devRef .tc main_v8083) = yJ (aX V0) (aA V0) (aB V0) (aC V0) 404 := by
  refine ((step403_val (val403 V0)).2).trans ?_
  rw [val403_main_arg0 V0, val403_main_v3 V0, val403_main_arg2 V0, val403_main_arg3 V0, val403_h V0, val403_y V0]
  rw [← hI_at (aX V0) (aA V0) (aB V0) 402 403 (by decide) rfl]
  exact (yJ_at (aX V0) (aA V0) (aB V0) (aC V0) 403 404 (by decide) rfl).symm
/-- The contents after step 404. -/
def val405 (V0 : Valuation τ sig (Elt Ideal)) : Valuation τ sig (Elt Ideal) := after (stepOps404 (F := Ideal)) (val404 V0)
theorem val405_main_arg0 (V0 : Valuation τ sig (Elt Ideal)) : val405 V0 (Proc.devRef .tc main_arg0) = aX V0 :=
  (after_keep _ 10 stepOps404_ok main_arg0 (by decide +kernel) (val404 V0)).trans (val404_main_arg0 V0)
theorem val405_main_arg1 (V0 : Valuation τ sig (Elt Ideal)) : val405 V0 (Proc.devRef .tc main_arg1) = aA V0 :=
  (after_keep _ 10 stepOps404_ok main_arg1 (by decide +kernel) (val404 V0)).trans (val404_main_arg1 V0)
theorem val405_main_arg2 (V0 : Valuation τ sig (Elt Ideal)) : val405 V0 (Proc.devRef .tc main_arg2) = aB V0 :=
  (after_keep _ 10 stepOps404_ok main_arg2 (by decide +kernel) (val404 V0)).trans (val404_main_arg2 V0)
theorem val405_main_arg3 (V0 : Valuation τ sig (Elt Ideal)) : val405 V0 (Proc.devRef .tc main_arg3) = aC V0 :=
  (after_keep _ 10 stepOps404_ok main_arg3 (by decide +kernel) (val404 V0)).trans (val404_main_arg3 V0)
theorem val405_main_v3 (V0 : Valuation τ sig (Elt Ideal)) : val405 V0 (Proc.devRef .tc main_v3) = decay (aA V0) :=
  (after_keep _ 10 stepOps404_ok main_v3 (by decide +kernel) (val404 V0)).trans (val404_main_v3 V0)
theorem val405_h (V0 : Valuation τ sig (Elt Ideal)) : val405 V0 (Proc.devRef .tc main_v8095) = hI (aX V0) (aA V0) (aB V0) 404 := by
  refine ((step404_val (val404 V0)).1).trans ?_
  rw [val404_main_arg0 V0, val404_main_v3 V0, val404_main_arg2 V0, val404_h V0]
  exact (hI_at (aX V0) (aA V0) (aB V0) 403 404 (by decide) rfl).symm
theorem val405_y (V0 : Valuation τ sig (Elt Ideal)) : val405 V0 (Proc.devRef .tc main_v8103) = yJ (aX V0) (aA V0) (aB V0) (aC V0) 405 := by
  refine ((step404_val (val404 V0)).2).trans ?_
  rw [val404_main_arg0 V0, val404_main_v3 V0, val404_main_arg2 V0, val404_main_arg3 V0, val404_h V0, val404_y V0]
  rw [← hI_at (aX V0) (aA V0) (aB V0) 403 404 (by decide) rfl]
  exact (yJ_at (aX V0) (aA V0) (aB V0) (aC V0) 404 405 (by decide) rfl).symm
/-- The contents after step 405. -/
def val406 (V0 : Valuation τ sig (Elt Ideal)) : Valuation τ sig (Elt Ideal) := after (stepOps405 (F := Ideal)) (val405 V0)
theorem val406_main_arg0 (V0 : Valuation τ sig (Elt Ideal)) : val406 V0 (Proc.devRef .tc main_arg0) = aX V0 :=
  (after_keep _ 10 stepOps405_ok main_arg0 (by decide +kernel) (val405 V0)).trans (val405_main_arg0 V0)
theorem val406_main_arg1 (V0 : Valuation τ sig (Elt Ideal)) : val406 V0 (Proc.devRef .tc main_arg1) = aA V0 :=
  (after_keep _ 10 stepOps405_ok main_arg1 (by decide +kernel) (val405 V0)).trans (val405_main_arg1 V0)
theorem val406_main_arg2 (V0 : Valuation τ sig (Elt Ideal)) : val406 V0 (Proc.devRef .tc main_arg2) = aB V0 :=
  (after_keep _ 10 stepOps405_ok main_arg2 (by decide +kernel) (val405 V0)).trans (val405_main_arg2 V0)
theorem val406_main_arg3 (V0 : Valuation τ sig (Elt Ideal)) : val406 V0 (Proc.devRef .tc main_arg3) = aC V0 :=
  (after_keep _ 10 stepOps405_ok main_arg3 (by decide +kernel) (val405 V0)).trans (val405_main_arg3 V0)
theorem val406_main_v3 (V0 : Valuation τ sig (Elt Ideal)) : val406 V0 (Proc.devRef .tc main_v3) = decay (aA V0) :=
  (after_keep _ 10 stepOps405_ok main_v3 (by decide +kernel) (val405 V0)).trans (val405_main_v3 V0)
theorem val406_h (V0 : Valuation τ sig (Elt Ideal)) : val406 V0 (Proc.devRef .tc main_v8115) = hI (aX V0) (aA V0) (aB V0) 405 := by
  refine ((step405_val (val405 V0)).1).trans ?_
  rw [val405_main_arg0 V0, val405_main_v3 V0, val405_main_arg2 V0, val405_h V0]
  exact (hI_at (aX V0) (aA V0) (aB V0) 404 405 (by decide) rfl).symm
theorem val406_y (V0 : Valuation τ sig (Elt Ideal)) : val406 V0 (Proc.devRef .tc main_v8123) = yJ (aX V0) (aA V0) (aB V0) (aC V0) 406 := by
  refine ((step405_val (val405 V0)).2).trans ?_
  rw [val405_main_arg0 V0, val405_main_v3 V0, val405_main_arg2 V0, val405_main_arg3 V0, val405_h V0, val405_y V0]
  rw [← hI_at (aX V0) (aA V0) (aB V0) 404 405 (by decide) rfl]
  exact (yJ_at (aX V0) (aA V0) (aB V0) (aC V0) 405 406 (by decide) rfl).symm
/-- The contents after step 406. -/
def val407 (V0 : Valuation τ sig (Elt Ideal)) : Valuation τ sig (Elt Ideal) := after (stepOps406 (F := Ideal)) (val406 V0)
theorem val407_main_arg0 (V0 : Valuation τ sig (Elt Ideal)) : val407 V0 (Proc.devRef .tc main_arg0) = aX V0 :=
  (after_keep _ 10 stepOps406_ok main_arg0 (by decide +kernel) (val406 V0)).trans (val406_main_arg0 V0)
theorem val407_main_arg1 (V0 : Valuation τ sig (Elt Ideal)) : val407 V0 (Proc.devRef .tc main_arg1) = aA V0 :=
  (after_keep _ 10 stepOps406_ok main_arg1 (by decide +kernel) (val406 V0)).trans (val406_main_arg1 V0)
theorem val407_main_arg2 (V0 : Valuation τ sig (Elt Ideal)) : val407 V0 (Proc.devRef .tc main_arg2) = aB V0 :=
  (after_keep _ 10 stepOps406_ok main_arg2 (by decide +kernel) (val406 V0)).trans (val406_main_arg2 V0)
theorem val407_main_arg3 (V0 : Valuation τ sig (Elt Ideal)) : val407 V0 (Proc.devRef .tc main_arg3) = aC V0 :=
  (after_keep _ 10 stepOps406_ok main_arg3 (by decide +kernel) (val406 V0)).trans (val406_main_arg3 V0)
theorem val407_main_v3 (V0 : Valuation τ sig (Elt Ideal)) : val407 V0 (Proc.devRef .tc main_v3) = decay (aA V0) :=
  (after_keep _ 10 stepOps406_ok main_v3 (by decide +kernel) (val406 V0)).trans (val406_main_v3 V0)
theorem val407_h (V0 : Valuation τ sig (Elt Ideal)) : val407 V0 (Proc.devRef .tc main_v8135) = hI (aX V0) (aA V0) (aB V0) 406 := by
  refine ((step406_val (val406 V0)).1).trans ?_
  rw [val406_main_arg0 V0, val406_main_v3 V0, val406_main_arg2 V0, val406_h V0]
  exact (hI_at (aX V0) (aA V0) (aB V0) 405 406 (by decide) rfl).symm
theorem val407_y (V0 : Valuation τ sig (Elt Ideal)) : val407 V0 (Proc.devRef .tc main_v8143) = yJ (aX V0) (aA V0) (aB V0) (aC V0) 407 := by
  refine ((step406_val (val406 V0)).2).trans ?_
  rw [val406_main_arg0 V0, val406_main_v3 V0, val406_main_arg2 V0, val406_main_arg3 V0, val406_h V0, val406_y V0]
  rw [← hI_at (aX V0) (aA V0) (aB V0) 405 406 (by decide) rfl]
  exact (yJ_at (aX V0) (aA V0) (aB V0) (aC V0) 406 407 (by decide) rfl).symm
/-- The contents after step 407. -/
def val408 (V0 : Valuation τ sig (Elt Ideal)) : Valuation τ sig (Elt Ideal) := after (stepOps407 (F := Ideal)) (val407 V0)
theorem val408_main_arg0 (V0 : Valuation τ sig (Elt Ideal)) : val408 V0 (Proc.devRef .tc main_arg0) = aX V0 :=
  (after_keep _ 10 stepOps407_ok main_arg0 (by decide +kernel) (val407 V0)).trans (val407_main_arg0 V0)
theorem val408_main_arg1 (V0 : Valuation τ sig (Elt Ideal)) : val408 V0 (Proc.devRef .tc main_arg1) = aA V0 :=
  (after_keep _ 10 stepOps407_ok main_arg1 (by decide +kernel) (val407 V0)).trans (val407_main_arg1 V0)
theorem val408_main_arg2 (V0 : Valuation τ sig (Elt Ideal)) : val408 V0 (Proc.devRef .tc main_arg2) = aB V0 :=
  (after_keep _ 10 stepOps407_ok main_arg2 (by decide +kernel) (val407 V0)).trans (val407_main_arg2 V0)
theorem val408_main_arg3 (V0 : Valuation τ sig (Elt Ideal)) : val408 V0 (Proc.devRef .tc main_arg3) = aC V0 :=
  (after_keep _ 10 stepOps407_ok main_arg3 (by decide +kernel) (val407 V0)).trans (val407_main_arg3 V0)
theorem val408_main_v3 (V0 : Valuation τ sig (Elt Ideal)) : val408 V0 (Proc.devRef .tc main_v3) = decay (aA V0) :=
  (after_keep _ 10 stepOps407_ok main_v3 (by decide +kernel) (val407 V0)).trans (val407_main_v3 V0)
theorem val408_h (V0 : Valuation τ sig (Elt Ideal)) : val408 V0 (Proc.devRef .tc main_v8155) = hI (aX V0) (aA V0) (aB V0) 407 := by
  refine ((step407_val (val407 V0)).1).trans ?_
  rw [val407_main_arg0 V0, val407_main_v3 V0, val407_main_arg2 V0, val407_h V0]
  exact (hI_at (aX V0) (aA V0) (aB V0) 406 407 (by decide) rfl).symm
theorem val408_y (V0 : Valuation τ sig (Elt Ideal)) : val408 V0 (Proc.devRef .tc main_v8163) = yJ (aX V0) (aA V0) (aB V0) (aC V0) 408 := by
  refine ((step407_val (val407 V0)).2).trans ?_
  rw [val407_main_arg0 V0, val407_main_v3 V0, val407_main_arg2 V0, val407_main_arg3 V0, val407_h V0, val407_y V0]
  rw [← hI_at (aX V0) (aA V0) (aB V0) 406 407 (by decide) rfl]
  exact (yJ_at (aX V0) (aA V0) (aB V0) (aC V0) 407 408 (by decide) rfl).symm
/-- The contents after step 408. -/
def val409 (V0 : Valuation τ sig (Elt Ideal)) : Valuation τ sig (Elt Ideal) := after (stepOps408 (F := Ideal)) (val408 V0)
theorem val409_main_arg0 (V0 : Valuation τ sig (Elt Ideal)) : val409 V0 (Proc.devRef .tc main_arg0) = aX V0 :=
  (after_keep _ 10 stepOps408_ok main_arg0 (by decide +kernel) (val408 V0)).trans (val408_main_arg0 V0)
theorem val409_main_arg1 (V0 : Valuation τ sig (Elt Ideal)) : val409 V0 (Proc.devRef .tc main_arg1) = aA V0 :=
  (after_keep _ 10 stepOps408_ok main_arg1 (by decide +kernel) (val408 V0)).trans (val408_main_arg1 V0)
theorem val409_main_arg2 (V0 : Valuation τ sig (Elt Ideal)) : val409 V0 (Proc.devRef .tc main_arg2) = aB V0 :=
  (after_keep _ 10 stepOps408_ok main_arg2 (by decide +kernel) (val408 V0)).trans (val408_main_arg2 V0)
theorem val409_main_arg3 (V0 : Valuation τ sig (Elt Ideal)) : val409 V0 (Proc.devRef .tc main_arg3) = aC V0 :=
  (after_keep _ 10 stepOps408_ok main_arg3 (by decide +kernel) (val408 V0)).trans (val408_main_arg3 V0)
theorem val409_main_v3 (V0 : Valuation τ sig (Elt Ideal)) : val409 V0 (Proc.devRef .tc main_v3) = decay (aA V0) :=
  (after_keep _ 10 stepOps408_ok main_v3 (by decide +kernel) (val408 V0)).trans (val408_main_v3 V0)
theorem val409_h (V0 : Valuation τ sig (Elt Ideal)) : val409 V0 (Proc.devRef .tc main_v8175) = hI (aX V0) (aA V0) (aB V0) 408 := by
  refine ((step408_val (val408 V0)).1).trans ?_
  rw [val408_main_arg0 V0, val408_main_v3 V0, val408_main_arg2 V0, val408_h V0]
  exact (hI_at (aX V0) (aA V0) (aB V0) 407 408 (by decide) rfl).symm
theorem val409_y (V0 : Valuation τ sig (Elt Ideal)) : val409 V0 (Proc.devRef .tc main_v8183) = yJ (aX V0) (aA V0) (aB V0) (aC V0) 409 := by
  refine ((step408_val (val408 V0)).2).trans ?_
  rw [val408_main_arg0 V0, val408_main_v3 V0, val408_main_arg2 V0, val408_main_arg3 V0, val408_h V0, val408_y V0]
  rw [← hI_at (aX V0) (aA V0) (aB V0) 407 408 (by decide) rfl]
  exact (yJ_at (aX V0) (aA V0) (aB V0) (aC V0) 408 409 (by decide) rfl).symm
/-- The contents after step 409. -/
def val410 (V0 : Valuation τ sig (Elt Ideal)) : Valuation τ sig (Elt Ideal) := after (stepOps409 (F := Ideal)) (val409 V0)
theorem val410_main_arg0 (V0 : Valuation τ sig (Elt Ideal)) : val410 V0 (Proc.devRef .tc main_arg0) = aX V0 :=
  (after_keep _ 10 stepOps409_ok main_arg0 (by decide +kernel) (val409 V0)).trans (val409_main_arg0 V0)
theorem val410_main_arg1 (V0 : Valuation τ sig (Elt Ideal)) : val410 V0 (Proc.devRef .tc main_arg1) = aA V0 :=
  (after_keep _ 10 stepOps409_ok main_arg1 (by decide +kernel) (val409 V0)).trans (val409_main_arg1 V0)
theorem val410_main_arg2 (V0 : Valuation τ sig (Elt Ideal)) : val410 V0 (Proc.devRef .tc main_arg2) = aB V0 :=
  (after_keep _ 10 stepOps409_ok main_arg2 (by decide +kernel) (val409 V0)).trans (val409_main_arg2 V0)
theorem val410_main_arg3 (V0 : Valuation τ sig (Elt Ideal)) : val410 V0 (Proc.devRef .tc main_arg3) = aC V0 :=
  (after_keep _ 10 stepOps409_ok main_arg3 (by decide +kernel) (val409 V0)).trans (val409_main_arg3 V0)
theorem val410_main_v3 (V0 : Valuation τ sig (Elt Ideal)) : val410 V0 (Proc.devRef .tc main_v3) = decay (aA V0) :=
  (after_keep _ 10 stepOps409_ok main_v3 (by decide +kernel) (val409 V0)).trans (val409_main_v3 V0)
theorem val410_h (V0 : Valuation τ sig (Elt Ideal)) : val410 V0 (Proc.devRef .tc main_v8195) = hI (aX V0) (aA V0) (aB V0) 409 := by
  refine ((step409_val (val409 V0)).1).trans ?_
  rw [val409_main_arg0 V0, val409_main_v3 V0, val409_main_arg2 V0, val409_h V0]
  exact (hI_at (aX V0) (aA V0) (aB V0) 408 409 (by decide) rfl).symm
theorem val410_y (V0 : Valuation τ sig (Elt Ideal)) : val410 V0 (Proc.devRef .tc main_v8203) = yJ (aX V0) (aA V0) (aB V0) (aC V0) 410 := by
  refine ((step409_val (val409 V0)).2).trans ?_
  rw [val409_main_arg0 V0, val409_main_v3 V0, val409_main_arg2 V0, val409_main_arg3 V0, val409_h V0, val409_y V0]
  rw [← hI_at (aX V0) (aA V0) (aB V0) 408 409 (by decide) rfl]
  exact (yJ_at (aX V0) (aA V0) (aB V0) (aC V0) 409 410 (by decide) rfl).symm
/-- The contents after step 410. -/
def val411 (V0 : Valuation τ sig (Elt Ideal)) : Valuation τ sig (Elt Ideal) := after (stepOps410 (F := Ideal)) (val410 V0)
theorem val411_main_arg0 (V0 : Valuation τ sig (Elt Ideal)) : val411 V0 (Proc.devRef .tc main_arg0) = aX V0 :=
  (after_keep _ 10 stepOps410_ok main_arg0 (by decide +kernel) (val410 V0)).trans (val410_main_arg0 V0)
theorem val411_main_arg1 (V0 : Valuation τ sig (Elt Ideal)) : val411 V0 (Proc.devRef .tc main_arg1) = aA V0 :=
  (after_keep _ 10 stepOps410_ok main_arg1 (by decide +kernel) (val410 V0)).trans (val410_main_arg1 V0)
theorem val411_main_arg2 (V0 : Valuation τ sig (Elt Ideal)) : val411 V0 (Proc.devRef .tc main_arg2) = aB V0 :=
  (after_keep _ 10 stepOps410_ok main_arg2 (by decide +kernel) (val410 V0)).trans (val410_main_arg2 V0)
theorem val411_main_arg3 (V0 : Valuation τ sig (Elt Ideal)) : val411 V0 (Proc.devRef .tc main_arg3) = aC V0 :=
  (after_keep _ 10 stepOps410_ok main_arg3 (by decide +kernel) (val410 V0)).trans (val410_main_arg3 V0)
theorem val411_main_v3 (V0 : Valuation τ sig (Elt Ideal)) : val411 V0 (Proc.devRef .tc main_v3) = decay (aA V0) :=
  (after_keep _ 10 stepOps410_ok main_v3 (by decide +kernel) (val410 V0)).trans (val410_main_v3 V0)
theorem val411_h (V0 : Valuation τ sig (Elt Ideal)) : val411 V0 (Proc.devRef .tc main_v8215) = hI (aX V0) (aA V0) (aB V0) 410 := by
  refine ((step410_val (val410 V0)).1).trans ?_
  rw [val410_main_arg0 V0, val410_main_v3 V0, val410_main_arg2 V0, val410_h V0]
  exact (hI_at (aX V0) (aA V0) (aB V0) 409 410 (by decide) rfl).symm
theorem val411_y (V0 : Valuation τ sig (Elt Ideal)) : val411 V0 (Proc.devRef .tc main_v8223) = yJ (aX V0) (aA V0) (aB V0) (aC V0) 411 := by
  refine ((step410_val (val410 V0)).2).trans ?_
  rw [val410_main_arg0 V0, val410_main_v3 V0, val410_main_arg2 V0, val410_main_arg3 V0, val410_h V0, val410_y V0]
  rw [← hI_at (aX V0) (aA V0) (aB V0) 409 410 (by decide) rfl]
  exact (yJ_at (aX V0) (aA V0) (aB V0) (aC V0) 410 411 (by decide) rfl).symm
/-- The contents after step 411. -/
def val412 (V0 : Valuation τ sig (Elt Ideal)) : Valuation τ sig (Elt Ideal) := after (stepOps411 (F := Ideal)) (val411 V0)
theorem val412_main_arg0 (V0 : Valuation τ sig (Elt Ideal)) : val412 V0 (Proc.devRef .tc main_arg0) = aX V0 :=
  (after_keep _ 10 stepOps411_ok main_arg0 (by decide +kernel) (val411 V0)).trans (val411_main_arg0 V0)
theorem val412_main_arg1 (V0 : Valuation τ sig (Elt Ideal)) : val412 V0 (Proc.devRef .tc main_arg1) = aA V0 :=
  (after_keep _ 10 stepOps411_ok main_arg1 (by decide +kernel) (val411 V0)).trans (val411_main_arg1 V0)
theorem val412_main_arg2 (V0 : Valuation τ sig (Elt Ideal)) : val412 V0 (Proc.devRef .tc main_arg2) = aB V0 :=
  (after_keep _ 10 stepOps411_ok main_arg2 (by decide +kernel) (val411 V0)).trans (val411_main_arg2 V0)
theorem val412_main_arg3 (V0 : Valuation τ sig (Elt Ideal)) : val412 V0 (Proc.devRef .tc main_arg3) = aC V0 :=
  (after_keep _ 10 stepOps411_ok main_arg3 (by decide +kernel) (val411 V0)).trans (val411_main_arg3 V0)
theorem val412_main_v3 (V0 : Valuation τ sig (Elt Ideal)) : val412 V0 (Proc.devRef .tc main_v3) = decay (aA V0) :=
  (after_keep _ 10 stepOps411_ok main_v3 (by decide +kernel) (val411 V0)).trans (val411_main_v3 V0)
theorem val412_h (V0 : Valuation τ sig (Elt Ideal)) : val412 V0 (Proc.devRef .tc main_v8235) = hI (aX V0) (aA V0) (aB V0) 411 := by
  refine ((step411_val (val411 V0)).1).trans ?_
  rw [val411_main_arg0 V0, val411_main_v3 V0, val411_main_arg2 V0, val411_h V0]
  exact (hI_at (aX V0) (aA V0) (aB V0) 410 411 (by decide) rfl).symm
theorem val412_y (V0 : Valuation τ sig (Elt Ideal)) : val412 V0 (Proc.devRef .tc main_v8243) = yJ (aX V0) (aA V0) (aB V0) (aC V0) 412 := by
  refine ((step411_val (val411 V0)).2).trans ?_
  rw [val411_main_arg0 V0, val411_main_v3 V0, val411_main_arg2 V0, val411_main_arg3 V0, val411_h V0, val411_y V0]
  rw [← hI_at (aX V0) (aA V0) (aB V0) 410 411 (by decide) rfl]
  exact (yJ_at (aX V0) (aA V0) (aB V0) (aC V0) 411 412 (by decide) rfl).symm
/-- The contents after step 412. -/
def val413 (V0 : Valuation τ sig (Elt Ideal)) : Valuation τ sig (Elt Ideal) := after (stepOps412 (F := Ideal)) (val412 V0)
theorem val413_main_arg0 (V0 : Valuation τ sig (Elt Ideal)) : val413 V0 (Proc.devRef .tc main_arg0) = aX V0 :=
  (after_keep _ 10 stepOps412_ok main_arg0 (by decide +kernel) (val412 V0)).trans (val412_main_arg0 V0)
theorem val413_main_arg1 (V0 : Valuation τ sig (Elt Ideal)) : val413 V0 (Proc.devRef .tc main_arg1) = aA V0 :=
  (after_keep _ 10 stepOps412_ok main_arg1 (by decide +kernel) (val412 V0)).trans (val412_main_arg1 V0)
theorem val413_main_arg2 (V0 : Valuation τ sig (Elt Ideal)) : val413 V0 (Proc.devRef .tc main_arg2) = aB V0 :=
  (after_keep _ 10 stepOps412_ok main_arg2 (by decide +kernel) (val412 V0)).trans (val412_main_arg2 V0)
theorem val413_main_arg3 (V0 : Valuation τ sig (Elt Ideal)) : val413 V0 (Proc.devRef .tc main_arg3) = aC V0 :=
  (after_keep _ 10 stepOps412_ok main_arg3 (by decide +kernel) (val412 V0)).trans (val412_main_arg3 V0)
theorem val413_main_v3 (V0 : Valuation τ sig (Elt Ideal)) : val413 V0 (Proc.devRef .tc main_v3) = decay (aA V0) :=
  (after_keep _ 10 stepOps412_ok main_v3 (by decide +kernel) (val412 V0)).trans (val412_main_v3 V0)
theorem val413_h (V0 : Valuation τ sig (Elt Ideal)) : val413 V0 (Proc.devRef .tc main_v8255) = hI (aX V0) (aA V0) (aB V0) 412 := by
  refine ((step412_val (val412 V0)).1).trans ?_
  rw [val412_main_arg0 V0, val412_main_v3 V0, val412_main_arg2 V0, val412_h V0]
  exact (hI_at (aX V0) (aA V0) (aB V0) 411 412 (by decide) rfl).symm
theorem val413_y (V0 : Valuation τ sig (Elt Ideal)) : val413 V0 (Proc.devRef .tc main_v8263) = yJ (aX V0) (aA V0) (aB V0) (aC V0) 413 := by
  refine ((step412_val (val412 V0)).2).trans ?_
  rw [val412_main_arg0 V0, val412_main_v3 V0, val412_main_arg2 V0, val412_main_arg3 V0, val412_h V0, val412_y V0]
  rw [← hI_at (aX V0) (aA V0) (aB V0) 411 412 (by decide) rfl]
  exact (yJ_at (aX V0) (aA V0) (aB V0) (aC V0) 412 413 (by decide) rfl).symm
/-- The contents after step 413. -/
def val414 (V0 : Valuation τ sig (Elt Ideal)) : Valuation τ sig (Elt Ideal) := after (stepOps413 (F := Ideal)) (val413 V0)
theorem val414_main_arg0 (V0 : Valuation τ sig (Elt Ideal)) : val414 V0 (Proc.devRef .tc main_arg0) = aX V0 :=
  (after_keep _ 10 stepOps413_ok main_arg0 (by decide +kernel) (val413 V0)).trans (val413_main_arg0 V0)
theorem val414_main_arg1 (V0 : Valuation τ sig (Elt Ideal)) : val414 V0 (Proc.devRef .tc main_arg1) = aA V0 :=
  (after_keep _ 10 stepOps413_ok main_arg1 (by decide +kernel) (val413 V0)).trans (val413_main_arg1 V0)
theorem val414_main_arg2 (V0 : Valuation τ sig (Elt Ideal)) : val414 V0 (Proc.devRef .tc main_arg2) = aB V0 :=
  (after_keep _ 10 stepOps413_ok main_arg2 (by decide +kernel) (val413 V0)).trans (val413_main_arg2 V0)
theorem val414_main_arg3 (V0 : Valuation τ sig (Elt Ideal)) : val414 V0 (Proc.devRef .tc main_arg3) = aC V0 :=
  (after_keep _ 10 stepOps413_ok main_arg3 (by decide +kernel) (val413 V0)).trans (val413_main_arg3 V0)
theorem val414_main_v3 (V0 : Valuation τ sig (Elt Ideal)) : val414 V0 (Proc.devRef .tc main_v3) = decay (aA V0) :=
  (after_keep _ 10 stepOps413_ok main_v3 (by decide +kernel) (val413 V0)).trans (val413_main_v3 V0)
theorem val414_h (V0 : Valuation τ sig (Elt Ideal)) : val414 V0 (Proc.devRef .tc main_v8275) = hI (aX V0) (aA V0) (aB V0) 413 := by
  refine ((step413_val (val413 V0)).1).trans ?_
  rw [val413_main_arg0 V0, val413_main_v3 V0, val413_main_arg2 V0, val413_h V0]
  exact (hI_at (aX V0) (aA V0) (aB V0) 412 413 (by decide) rfl).symm
theorem val414_y (V0 : Valuation τ sig (Elt Ideal)) : val414 V0 (Proc.devRef .tc main_v8283) = yJ (aX V0) (aA V0) (aB V0) (aC V0) 414 := by
  refine ((step413_val (val413 V0)).2).trans ?_
  rw [val413_main_arg0 V0, val413_main_v3 V0, val413_main_arg2 V0, val413_main_arg3 V0, val413_h V0, val413_y V0]
  rw [← hI_at (aX V0) (aA V0) (aB V0) 412 413 (by decide) rfl]
  exact (yJ_at (aX V0) (aA V0) (aB V0) (aC V0) 413 414 (by decide) rfl).symm
/-- The contents after step 414. -/
def val415 (V0 : Valuation τ sig (Elt Ideal)) : Valuation τ sig (Elt Ideal) := after (stepOps414 (F := Ideal)) (val414 V0)
theorem val415_main_arg0 (V0 : Valuation τ sig (Elt Ideal)) : val415 V0 (Proc.devRef .tc main_arg0) = aX V0 :=
  (after_keep _ 10 stepOps414_ok main_arg0 (by decide +kernel) (val414 V0)).trans (val414_main_arg0 V0)
theorem val415_main_arg1 (V0 : Valuation τ sig (Elt Ideal)) : val415 V0 (Proc.devRef .tc main_arg1) = aA V0 :=
  (after_keep _ 10 stepOps414_ok main_arg1 (by decide +kernel) (val414 V0)).trans (val414_main_arg1 V0)
theorem val415_main_arg2 (V0 : Valuation τ sig (Elt Ideal)) : val415 V0 (Proc.devRef .tc main_arg2) = aB V0 :=
  (after_keep _ 10 stepOps414_ok main_arg2 (by decide +kernel) (val414 V0)).trans (val414_main_arg2 V0)
theorem val415_main_arg3 (V0 : Valuation τ sig (Elt Ideal)) : val415 V0 (Proc.devRef .tc main_arg3) = aC V0 :=
  (after_keep _ 10 stepOps414_ok main_arg3 (by decide +kernel) (val414 V0)).trans (val414_main_arg3 V0)
theorem val415_main_v3 (V0 : Valuation τ sig (Elt Ideal)) : val415 V0 (Proc.devRef .tc main_v3) = decay (aA V0) :=
  (after_keep _ 10 stepOps414_ok main_v3 (by decide +kernel) (val414 V0)).trans (val414_main_v3 V0)
theorem val415_h (V0 : Valuation τ sig (Elt Ideal)) : val415 V0 (Proc.devRef .tc main_v8295) = hI (aX V0) (aA V0) (aB V0) 414 := by
  refine ((step414_val (val414 V0)).1).trans ?_
  rw [val414_main_arg0 V0, val414_main_v3 V0, val414_main_arg2 V0, val414_h V0]
  exact (hI_at (aX V0) (aA V0) (aB V0) 413 414 (by decide) rfl).symm
theorem val415_y (V0 : Valuation τ sig (Elt Ideal)) : val415 V0 (Proc.devRef .tc main_v8303) = yJ (aX V0) (aA V0) (aB V0) (aC V0) 415 := by
  refine ((step414_val (val414 V0)).2).trans ?_
  rw [val414_main_arg0 V0, val414_main_v3 V0, val414_main_arg2 V0, val414_main_arg3 V0, val414_h V0, val414_y V0]
  rw [← hI_at (aX V0) (aA V0) (aB V0) 413 414 (by decide) rfl]
  exact (yJ_at (aX V0) (aA V0) (aB V0) (aC V0) 414 415 (by decide) rfl).symm
/-- The contents after step 415. -/
def val416 (V0 : Valuation τ sig (Elt Ideal)) : Valuation τ sig (Elt Ideal) := after (stepOps415 (F := Ideal)) (val415 V0)
theorem val416_main_arg0 (V0 : Valuation τ sig (Elt Ideal)) : val416 V0 (Proc.devRef .tc main_arg0) = aX V0 :=
  (after_keep _ 10 stepOps415_ok main_arg0 (by decide +kernel) (val415 V0)).trans (val415_main_arg0 V0)
theorem val416_main_arg1 (V0 : Valuation τ sig (Elt Ideal)) : val416 V0 (Proc.devRef .tc main_arg1) = aA V0 :=
  (after_keep _ 10 stepOps415_ok main_arg1 (by decide +kernel) (val415 V0)).trans (val415_main_arg1 V0)
theorem val416_main_arg2 (V0 : Valuation τ sig (Elt Ideal)) : val416 V0 (Proc.devRef .tc main_arg2) = aB V0 :=
  (after_keep _ 10 stepOps415_ok main_arg2 (by decide +kernel) (val415 V0)).trans (val415_main_arg2 V0)
theorem val416_main_arg3 (V0 : Valuation τ sig (Elt Ideal)) : val416 V0 (Proc.devRef .tc main_arg3) = aC V0 :=
  (after_keep _ 10 stepOps415_ok main_arg3 (by decide +kernel) (val415 V0)).trans (val415_main_arg3 V0)
theorem val416_main_v3 (V0 : Valuation τ sig (Elt Ideal)) : val416 V0 (Proc.devRef .tc main_v3) = decay (aA V0) :=
  (after_keep _ 10 stepOps415_ok main_v3 (by decide +kernel) (val415 V0)).trans (val415_main_v3 V0)
theorem val416_h (V0 : Valuation τ sig (Elt Ideal)) : val416 V0 (Proc.devRef .tc main_v8315) = hI (aX V0) (aA V0) (aB V0) 415 := by
  refine ((step415_val (val415 V0)).1).trans ?_
  rw [val415_main_arg0 V0, val415_main_v3 V0, val415_main_arg2 V0, val415_h V0]
  exact (hI_at (aX V0) (aA V0) (aB V0) 414 415 (by decide) rfl).symm
theorem val416_y (V0 : Valuation τ sig (Elt Ideal)) : val416 V0 (Proc.devRef .tc main_v8323) = yJ (aX V0) (aA V0) (aB V0) (aC V0) 416 := by
  refine ((step415_val (val415 V0)).2).trans ?_
  rw [val415_main_arg0 V0, val415_main_v3 V0, val415_main_arg2 V0, val415_main_arg3 V0, val415_h V0, val415_y V0]
  rw [← hI_at (aX V0) (aA V0) (aB V0) 414 415 (by decide) rfl]
  exact (yJ_at (aX V0) (aA V0) (aB V0) (aC V0) 415 416 (by decide) rfl).symm
/-- The contents after step 416. -/
def val417 (V0 : Valuation τ sig (Elt Ideal)) : Valuation τ sig (Elt Ideal) := after (stepOps416 (F := Ideal)) (val416 V0)
theorem val417_main_arg0 (V0 : Valuation τ sig (Elt Ideal)) : val417 V0 (Proc.devRef .tc main_arg0) = aX V0 :=
  (after_keep _ 10 stepOps416_ok main_arg0 (by decide +kernel) (val416 V0)).trans (val416_main_arg0 V0)
theorem val417_main_arg1 (V0 : Valuation τ sig (Elt Ideal)) : val417 V0 (Proc.devRef .tc main_arg1) = aA V0 :=
  (after_keep _ 10 stepOps416_ok main_arg1 (by decide +kernel) (val416 V0)).trans (val416_main_arg1 V0)
theorem val417_main_arg2 (V0 : Valuation τ sig (Elt Ideal)) : val417 V0 (Proc.devRef .tc main_arg2) = aB V0 :=
  (after_keep _ 10 stepOps416_ok main_arg2 (by decide +kernel) (val416 V0)).trans (val416_main_arg2 V0)
theorem val417_main_arg3 (V0 : Valuation τ sig (Elt Ideal)) : val417 V0 (Proc.devRef .tc main_arg3) = aC V0 :=
  (after_keep _ 10 stepOps416_ok main_arg3 (by decide +kernel) (val416 V0)).trans (val416_main_arg3 V0)
theorem val417_main_v3 (V0 : Valuation τ sig (Elt Ideal)) : val417 V0 (Proc.devRef .tc main_v3) = decay (aA V0) :=
  (after_keep _ 10 stepOps416_ok main_v3 (by decide +kernel) (val416 V0)).trans (val416_main_v3 V0)
theorem val417_h (V0 : Valuation τ sig (Elt Ideal)) : val417 V0 (Proc.devRef .tc main_v8335) = hI (aX V0) (aA V0) (aB V0) 416 := by
  refine ((step416_val (val416 V0)).1).trans ?_
  rw [val416_main_arg0 V0, val416_main_v3 V0, val416_main_arg2 V0, val416_h V0]
  exact (hI_at (aX V0) (aA V0) (aB V0) 415 416 (by decide) rfl).symm
theorem val417_y (V0 : Valuation τ sig (Elt Ideal)) : val417 V0 (Proc.devRef .tc main_v8343) = yJ (aX V0) (aA V0) (aB V0) (aC V0) 417 := by
  refine ((step416_val (val416 V0)).2).trans ?_
  rw [val416_main_arg0 V0, val416_main_v3 V0, val416_main_arg2 V0, val416_main_arg3 V0, val416_h V0, val416_y V0]
  rw [← hI_at (aX V0) (aA V0) (aB V0) 415 416 (by decide) rfl]
  exact (yJ_at (aX V0) (aA V0) (aB V0) (aC V0) 416 417 (by decide) rfl).symm
/-- The contents after step 417. -/
def val418 (V0 : Valuation τ sig (Elt Ideal)) : Valuation τ sig (Elt Ideal) := after (stepOps417 (F := Ideal)) (val417 V0)
theorem val418_main_arg0 (V0 : Valuation τ sig (Elt Ideal)) : val418 V0 (Proc.devRef .tc main_arg0) = aX V0 :=
  (after_keep _ 10 stepOps417_ok main_arg0 (by decide +kernel) (val417 V0)).trans (val417_main_arg0 V0)
theorem val418_main_arg1 (V0 : Valuation τ sig (Elt Ideal)) : val418 V0 (Proc.devRef .tc main_arg1) = aA V0 :=
  (after_keep _ 10 stepOps417_ok main_arg1 (by decide +kernel) (val417 V0)).trans (val417_main_arg1 V0)
theorem val418_main_arg2 (V0 : Valuation τ sig (Elt Ideal)) : val418 V0 (Proc.devRef .tc main_arg2) = aB V0 :=
  (after_keep _ 10 stepOps417_ok main_arg2 (by decide +kernel) (val417 V0)).trans (val417_main_arg2 V0)
theorem val418_main_arg3 (V0 : Valuation τ sig (Elt Ideal)) : val418 V0 (Proc.devRef .tc main_arg3) = aC V0 :=
  (after_keep _ 10 stepOps417_ok main_arg3 (by decide +kernel) (val417 V0)).trans (val417_main_arg3 V0)
theorem val418_main_v3 (V0 : Valuation τ sig (Elt Ideal)) : val418 V0 (Proc.devRef .tc main_v3) = decay (aA V0) :=
  (after_keep _ 10 stepOps417_ok main_v3 (by decide +kernel) (val417 V0)).trans (val417_main_v3 V0)
theorem val418_h (V0 : Valuation τ sig (Elt Ideal)) : val418 V0 (Proc.devRef .tc main_v8355) = hI (aX V0) (aA V0) (aB V0) 417 := by
  refine ((step417_val (val417 V0)).1).trans ?_
  rw [val417_main_arg0 V0, val417_main_v3 V0, val417_main_arg2 V0, val417_h V0]
  exact (hI_at (aX V0) (aA V0) (aB V0) 416 417 (by decide) rfl).symm
theorem val418_y (V0 : Valuation τ sig (Elt Ideal)) : val418 V0 (Proc.devRef .tc main_v8363) = yJ (aX V0) (aA V0) (aB V0) (aC V0) 418 := by
  refine ((step417_val (val417 V0)).2).trans ?_
  rw [val417_main_arg0 V0, val417_main_v3 V0, val417_main_arg2 V0, val417_main_arg3 V0, val417_h V0, val417_y V0]
  rw [← hI_at (aX V0) (aA V0) (aB V0) 416 417 (by decide) rfl]
  exact (yJ_at (aX V0) (aA V0) (aB V0) (aC V0) 417 418 (by decide) rfl).symm
/-- The contents after step 418. -/
def val419 (V0 : Valuation τ sig (Elt Ideal)) : Valuation τ sig (Elt Ideal) := after (stepOps418 (F := Ideal)) (val418 V0)
theorem val419_main_arg0 (V0 : Valuation τ sig (Elt Ideal)) : val419 V0 (Proc.devRef .tc main_arg0) = aX V0 :=
  (after_keep _ 10 stepOps418_ok main_arg0 (by decide +kernel) (val418 V0)).trans (val418_main_arg0 V0)
theorem val419_main_arg1 (V0 : Valuation τ sig (Elt Ideal)) : val419 V0 (Proc.devRef .tc main_arg1) = aA V0 :=
  (after_keep _ 10 stepOps418_ok main_arg1 (by decide +kernel) (val418 V0)).trans (val418_main_arg1 V0)
theorem val419_main_arg2 (V0 : Valuation τ sig (Elt Ideal)) : val419 V0 (Proc.devRef .tc main_arg2) = aB V0 :=
  (after_keep _ 10 stepOps418_ok main_arg2 (by decide +kernel) (val418 V0)).trans (val418_main_arg2 V0)
theorem val419_main_arg3 (V0 : Valuation τ sig (Elt Ideal)) : val419 V0 (Proc.devRef .tc main_arg3) = aC V0 :=
  (after_keep _ 10 stepOps418_ok main_arg3 (by decide +kernel) (val418 V0)).trans (val418_main_arg3 V0)
theorem val419_main_v3 (V0 : Valuation τ sig (Elt Ideal)) : val419 V0 (Proc.devRef .tc main_v3) = decay (aA V0) :=
  (after_keep _ 10 stepOps418_ok main_v3 (by decide +kernel) (val418 V0)).trans (val418_main_v3 V0)
theorem val419_h (V0 : Valuation τ sig (Elt Ideal)) : val419 V0 (Proc.devRef .tc main_v8375) = hI (aX V0) (aA V0) (aB V0) 418 := by
  refine ((step418_val (val418 V0)).1).trans ?_
  rw [val418_main_arg0 V0, val418_main_v3 V0, val418_main_arg2 V0, val418_h V0]
  exact (hI_at (aX V0) (aA V0) (aB V0) 417 418 (by decide) rfl).symm
theorem val419_y (V0 : Valuation τ sig (Elt Ideal)) : val419 V0 (Proc.devRef .tc main_v8383) = yJ (aX V0) (aA V0) (aB V0) (aC V0) 419 := by
  refine ((step418_val (val418 V0)).2).trans ?_
  rw [val418_main_arg0 V0, val418_main_v3 V0, val418_main_arg2 V0, val418_main_arg3 V0, val418_h V0, val418_y V0]
  rw [← hI_at (aX V0) (aA V0) (aB V0) 417 418 (by decide) rfl]
  exact (yJ_at (aX V0) (aA V0) (aB V0) (aC V0) 418 419 (by decide) rfl).symm
/-- The contents after step 419. -/
def val420 (V0 : Valuation τ sig (Elt Ideal)) : Valuation τ sig (Elt Ideal) := after (stepOps419 (F := Ideal)) (val419 V0)
theorem val420_main_arg0 (V0 : Valuation τ sig (Elt Ideal)) : val420 V0 (Proc.devRef .tc main_arg0) = aX V0 :=
  (after_keep _ 10 stepOps419_ok main_arg0 (by decide +kernel) (val419 V0)).trans (val419_main_arg0 V0)
theorem val420_main_arg1 (V0 : Valuation τ sig (Elt Ideal)) : val420 V0 (Proc.devRef .tc main_arg1) = aA V0 :=
  (after_keep _ 10 stepOps419_ok main_arg1 (by decide +kernel) (val419 V0)).trans (val419_main_arg1 V0)
theorem val420_main_arg2 (V0 : Valuation τ sig (Elt Ideal)) : val420 V0 (Proc.devRef .tc main_arg2) = aB V0 :=
  (after_keep _ 10 stepOps419_ok main_arg2 (by decide +kernel) (val419 V0)).trans (val419_main_arg2 V0)
theorem val420_main_arg3 (V0 : Valuation τ sig (Elt Ideal)) : val420 V0 (Proc.devRef .tc main_arg3) = aC V0 :=
  (after_keep _ 10 stepOps419_ok main_arg3 (by decide +kernel) (val419 V0)).trans (val419_main_arg3 V0)
theorem val420_main_v3 (V0 : Valuation τ sig (Elt Ideal)) : val420 V0 (Proc.devRef .tc main_v3) = decay (aA V0) :=
  (after_keep _ 10 stepOps419_ok main_v3 (by decide +kernel) (val419 V0)).trans (val419_main_v3 V0)
theorem val420_h (V0 : Valuation τ sig (Elt Ideal)) : val420 V0 (Proc.devRef .tc main_v8395) = hI (aX V0) (aA V0) (aB V0) 419 := by
  refine ((step419_val (val419 V0)).1).trans ?_
  rw [val419_main_arg0 V0, val419_main_v3 V0, val419_main_arg2 V0, val419_h V0]
  exact (hI_at (aX V0) (aA V0) (aB V0) 418 419 (by decide) rfl).symm
theorem val420_y (V0 : Valuation τ sig (Elt Ideal)) : val420 V0 (Proc.devRef .tc main_v8403) = yJ (aX V0) (aA V0) (aB V0) (aC V0) 420 := by
  refine ((step419_val (val419 V0)).2).trans ?_
  rw [val419_main_arg0 V0, val419_main_v3 V0, val419_main_arg2 V0, val419_main_arg3 V0, val419_h V0, val419_y V0]
  rw [← hI_at (aX V0) (aA V0) (aB V0) 418 419 (by decide) rfl]
  exact (yJ_at (aX V0) (aA V0) (aB V0) (aC V0) 419 420 (by decide) rfl).symm
/-- The contents after step 420. -/
def val421 (V0 : Valuation τ sig (Elt Ideal)) : Valuation τ sig (Elt Ideal) := after (stepOps420 (F := Ideal)) (val420 V0)
theorem val421_main_arg0 (V0 : Valuation τ sig (Elt Ideal)) : val421 V0 (Proc.devRef .tc main_arg0) = aX V0 :=
  (after_keep _ 10 stepOps420_ok main_arg0 (by decide +kernel) (val420 V0)).trans (val420_main_arg0 V0)
theorem val421_main_arg1 (V0 : Valuation τ sig (Elt Ideal)) : val421 V0 (Proc.devRef .tc main_arg1) = aA V0 :=
  (after_keep _ 10 stepOps420_ok main_arg1 (by decide +kernel) (val420 V0)).trans (val420_main_arg1 V0)
theorem val421_main_arg2 (V0 : Valuation τ sig (Elt Ideal)) : val421 V0 (Proc.devRef .tc main_arg2) = aB V0 :=
  (after_keep _ 10 stepOps420_ok main_arg2 (by decide +kernel) (val420 V0)).trans (val420_main_arg2 V0)
theorem val421_main_arg3 (V0 : Valuation τ sig (Elt Ideal)) : val421 V0 (Proc.devRef .tc main_arg3) = aC V0 :=
  (after_keep _ 10 stepOps420_ok main_arg3 (by decide +kernel) (val420 V0)).trans (val420_main_arg3 V0)
theorem val421_main_v3 (V0 : Valuation τ sig (Elt Ideal)) : val421 V0 (Proc.devRef .tc main_v3) = decay (aA V0) :=
  (after_keep _ 10 stepOps420_ok main_v3 (by decide +kernel) (val420 V0)).trans (val420_main_v3 V0)
theorem val421_h (V0 : Valuation τ sig (Elt Ideal)) : val421 V0 (Proc.devRef .tc main_v8415) = hI (aX V0) (aA V0) (aB V0) 420 := by
  refine ((step420_val (val420 V0)).1).trans ?_
  rw [val420_main_arg0 V0, val420_main_v3 V0, val420_main_arg2 V0, val420_h V0]
  exact (hI_at (aX V0) (aA V0) (aB V0) 419 420 (by decide) rfl).symm
theorem val421_y (V0 : Valuation τ sig (Elt Ideal)) : val421 V0 (Proc.devRef .tc main_v8423) = yJ (aX V0) (aA V0) (aB V0) (aC V0) 421 := by
  refine ((step420_val (val420 V0)).2).trans ?_
  rw [val420_main_arg0 V0, val420_main_v3 V0, val420_main_arg2 V0, val420_main_arg3 V0, val420_h V0, val420_y V0]
  rw [← hI_at (aX V0) (aA V0) (aB V0) 419 420 (by decide) rfl]
  exact (yJ_at (aX V0) (aA V0) (aB V0) (aC V0) 420 421 (by decide) rfl).symm
/-- The contents after step 421. -/
def val422 (V0 : Valuation τ sig (Elt Ideal)) : Valuation τ sig (Elt Ideal) := after (stepOps421 (F := Ideal)) (val421 V0)
theorem val422_main_arg0 (V0 : Valuation τ sig (Elt Ideal)) : val422 V0 (Proc.devRef .tc main_arg0) = aX V0 :=
  (after_keep _ 10 stepOps421_ok main_arg0 (by decide +kernel) (val421 V0)).trans (val421_main_arg0 V0)
theorem val422_main_arg1 (V0 : Valuation τ sig (Elt Ideal)) : val422 V0 (Proc.devRef .tc main_arg1) = aA V0 :=
  (after_keep _ 10 stepOps421_ok main_arg1 (by decide +kernel) (val421 V0)).trans (val421_main_arg1 V0)
theorem val422_main_arg2 (V0 : Valuation τ sig (Elt Ideal)) : val422 V0 (Proc.devRef .tc main_arg2) = aB V0 :=
  (after_keep _ 10 stepOps421_ok main_arg2 (by decide +kernel) (val421 V0)).trans (val421_main_arg2 V0)
theorem val422_main_arg3 (V0 : Valuation τ sig (Elt Ideal)) : val422 V0 (Proc.devRef .tc main_arg3) = aC V0 :=
  (after_keep _ 10 stepOps421_ok main_arg3 (by decide +kernel) (val421 V0)).trans (val421_main_arg3 V0)
theorem val422_main_v3 (V0 : Valuation τ sig (Elt Ideal)) : val422 V0 (Proc.devRef .tc main_v3) = decay (aA V0) :=
  (after_keep _ 10 stepOps421_ok main_v3 (by decide +kernel) (val421 V0)).trans (val421_main_v3 V0)
theorem val422_h (V0 : Valuation τ sig (Elt Ideal)) : val422 V0 (Proc.devRef .tc main_v8435) = hI (aX V0) (aA V0) (aB V0) 421 := by
  refine ((step421_val (val421 V0)).1).trans ?_
  rw [val421_main_arg0 V0, val421_main_v3 V0, val421_main_arg2 V0, val421_h V0]
  exact (hI_at (aX V0) (aA V0) (aB V0) 420 421 (by decide) rfl).symm
theorem val422_y (V0 : Valuation τ sig (Elt Ideal)) : val422 V0 (Proc.devRef .tc main_v8443) = yJ (aX V0) (aA V0) (aB V0) (aC V0) 422 := by
  refine ((step421_val (val421 V0)).2).trans ?_
  rw [val421_main_arg0 V0, val421_main_v3 V0, val421_main_arg2 V0, val421_main_arg3 V0, val421_h V0, val421_y V0]
  rw [← hI_at (aX V0) (aA V0) (aB V0) 420 421 (by decide) rfl]
  exact (yJ_at (aX V0) (aA V0) (aB V0) (aC V0) 421 422 (by decide) rfl).symm
/-- The contents after step 422. -/
def val423 (V0 : Valuation τ sig (Elt Ideal)) : Valuation τ sig (Elt Ideal) := after (stepOps422 (F := Ideal)) (val422 V0)
theorem val423_main_arg0 (V0 : Valuation τ sig (Elt Ideal)) : val423 V0 (Proc.devRef .tc main_arg0) = aX V0 :=
  (after_keep _ 10 stepOps422_ok main_arg0 (by decide +kernel) (val422 V0)).trans (val422_main_arg0 V0)
theorem val423_main_arg1 (V0 : Valuation τ sig (Elt Ideal)) : val423 V0 (Proc.devRef .tc main_arg1) = aA V0 :=
  (after_keep _ 10 stepOps422_ok main_arg1 (by decide +kernel) (val422 V0)).trans (val422_main_arg1 V0)
theorem val423_main_arg2 (V0 : Valuation τ sig (Elt Ideal)) : val423 V0 (Proc.devRef .tc main_arg2) = aB V0 :=
  (after_keep _ 10 stepOps422_ok main_arg2 (by decide +kernel) (val422 V0)).trans (val422_main_arg2 V0)
theorem val423_main_arg3 (V0 : Valuation τ sig (Elt Ideal)) : val423 V0 (Proc.devRef .tc main_arg3) = aC V0 :=
  (after_keep _ 10 stepOps422_ok main_arg3 (by decide +kernel) (val422 V0)).trans (val422_main_arg3 V0)
theorem val423_main_v3 (V0 : Valuation τ sig (Elt Ideal)) : val423 V0 (Proc.devRef .tc main_v3) = decay (aA V0) :=
  (after_keep _ 10 stepOps422_ok main_v3 (by decide +kernel) (val422 V0)).trans (val422_main_v3 V0)
theorem val423_h (V0 : Valuation τ sig (Elt Ideal)) : val423 V0 (Proc.devRef .tc main_v8455) = hI (aX V0) (aA V0) (aB V0) 422 := by
  refine ((step422_val (val422 V0)).1).trans ?_
  rw [val422_main_arg0 V0, val422_main_v3 V0, val422_main_arg2 V0, val422_h V0]
  exact (hI_at (aX V0) (aA V0) (aB V0) 421 422 (by decide) rfl).symm
theorem val423_y (V0 : Valuation τ sig (Elt Ideal)) : val423 V0 (Proc.devRef .tc main_v8463) = yJ (aX V0) (aA V0) (aB V0) (aC V0) 423 := by
  refine ((step422_val (val422 V0)).2).trans ?_
  rw [val422_main_arg0 V0, val422_main_v3 V0, val422_main_arg2 V0, val422_main_arg3 V0, val422_h V0, val422_y V0]
  rw [← hI_at (aX V0) (aA V0) (aB V0) 421 422 (by decide) rfl]
  exact (yJ_at (aX V0) (aA V0) (aB V0) (aC V0) 422 423 (by decide) rfl).symm
/-- The contents after step 423. -/
def val424 (V0 : Valuation τ sig (Elt Ideal)) : Valuation τ sig (Elt Ideal) := after (stepOps423 (F := Ideal)) (val423 V0)
theorem val424_main_arg0 (V0 : Valuation τ sig (Elt Ideal)) : val424 V0 (Proc.devRef .tc main_arg0) = aX V0 :=
  (after_keep _ 10 stepOps423_ok main_arg0 (by decide +kernel) (val423 V0)).trans (val423_main_arg0 V0)
theorem val424_main_arg1 (V0 : Valuation τ sig (Elt Ideal)) : val424 V0 (Proc.devRef .tc main_arg1) = aA V0 :=
  (after_keep _ 10 stepOps423_ok main_arg1 (by decide +kernel) (val423 V0)).trans (val423_main_arg1 V0)
theorem val424_main_arg2 (V0 : Valuation τ sig (Elt Ideal)) : val424 V0 (Proc.devRef .tc main_arg2) = aB V0 :=
  (after_keep _ 10 stepOps423_ok main_arg2 (by decide +kernel) (val423 V0)).trans (val423_main_arg2 V0)
theorem val424_main_arg3 (V0 : Valuation τ sig (Elt Ideal)) : val424 V0 (Proc.devRef .tc main_arg3) = aC V0 :=
  (after_keep _ 10 stepOps423_ok main_arg3 (by decide +kernel) (val423 V0)).trans (val423_main_arg3 V0)
theorem val424_main_v3 (V0 : Valuation τ sig (Elt Ideal)) : val424 V0 (Proc.devRef .tc main_v3) = decay (aA V0) :=
  (after_keep _ 10 stepOps423_ok main_v3 (by decide +kernel) (val423 V0)).trans (val423_main_v3 V0)
theorem val424_h (V0 : Valuation τ sig (Elt Ideal)) : val424 V0 (Proc.devRef .tc main_v8475) = hI (aX V0) (aA V0) (aB V0) 423 := by
  refine ((step423_val (val423 V0)).1).trans ?_
  rw [val423_main_arg0 V0, val423_main_v3 V0, val423_main_arg2 V0, val423_h V0]
  exact (hI_at (aX V0) (aA V0) (aB V0) 422 423 (by decide) rfl).symm
theorem val424_y (V0 : Valuation τ sig (Elt Ideal)) : val424 V0 (Proc.devRef .tc main_v8483) = yJ (aX V0) (aA V0) (aB V0) (aC V0) 424 := by
  refine ((step423_val (val423 V0)).2).trans ?_
  rw [val423_main_arg0 V0, val423_main_v3 V0, val423_main_arg2 V0, val423_main_arg3 V0, val423_h V0, val423_y V0]
  rw [← hI_at (aX V0) (aA V0) (aB V0) 422 423 (by decide) rfl]
  exact (yJ_at (aX V0) (aA V0) (aB V0) (aC V0) 423 424 (by decide) rfl).symm
/-- The contents after step 424. -/
def val425 (V0 : Valuation τ sig (Elt Ideal)) : Valuation τ sig (Elt Ideal) := after (stepOps424 (F := Ideal)) (val424 V0)
theorem val425_main_arg0 (V0 : Valuation τ sig (Elt Ideal)) : val425 V0 (Proc.devRef .tc main_arg0) = aX V0 :=
  (after_keep _ 10 stepOps424_ok main_arg0 (by decide +kernel) (val424 V0)).trans (val424_main_arg0 V0)
theorem val425_main_arg1 (V0 : Valuation τ sig (Elt Ideal)) : val425 V0 (Proc.devRef .tc main_arg1) = aA V0 :=
  (after_keep _ 10 stepOps424_ok main_arg1 (by decide +kernel) (val424 V0)).trans (val424_main_arg1 V0)
theorem val425_main_arg2 (V0 : Valuation τ sig (Elt Ideal)) : val425 V0 (Proc.devRef .tc main_arg2) = aB V0 :=
  (after_keep _ 10 stepOps424_ok main_arg2 (by decide +kernel) (val424 V0)).trans (val424_main_arg2 V0)
theorem val425_main_arg3 (V0 : Valuation τ sig (Elt Ideal)) : val425 V0 (Proc.devRef .tc main_arg3) = aC V0 :=
  (after_keep _ 10 stepOps424_ok main_arg3 (by decide +kernel) (val424 V0)).trans (val424_main_arg3 V0)
theorem val425_main_v3 (V0 : Valuation τ sig (Elt Ideal)) : val425 V0 (Proc.devRef .tc main_v3) = decay (aA V0) :=
  (after_keep _ 10 stepOps424_ok main_v3 (by decide +kernel) (val424 V0)).trans (val424_main_v3 V0)
theorem val425_h (V0 : Valuation τ sig (Elt Ideal)) : val425 V0 (Proc.devRef .tc main_v8495) = hI (aX V0) (aA V0) (aB V0) 424 := by
  refine ((step424_val (val424 V0)).1).trans ?_
  rw [val424_main_arg0 V0, val424_main_v3 V0, val424_main_arg2 V0, val424_h V0]
  exact (hI_at (aX V0) (aA V0) (aB V0) 423 424 (by decide) rfl).symm
theorem val425_y (V0 : Valuation τ sig (Elt Ideal)) : val425 V0 (Proc.devRef .tc main_v8503) = yJ (aX V0) (aA V0) (aB V0) (aC V0) 425 := by
  refine ((step424_val (val424 V0)).2).trans ?_
  rw [val424_main_arg0 V0, val424_main_v3 V0, val424_main_arg2 V0, val424_main_arg3 V0, val424_h V0, val424_y V0]
  rw [← hI_at (aX V0) (aA V0) (aB V0) 423 424 (by decide) rfl]
  exact (yJ_at (aX V0) (aA V0) (aB V0) (aC V0) 424 425 (by decide) rfl).symm
/-- The contents after step 425. -/
def val426 (V0 : Valuation τ sig (Elt Ideal)) : Valuation τ sig (Elt Ideal) := after (stepOps425 (F := Ideal)) (val425 V0)
theorem val426_main_arg0 (V0 : Valuation τ sig (Elt Ideal)) : val426 V0 (Proc.devRef .tc main_arg0) = aX V0 :=
  (after_keep _ 10 stepOps425_ok main_arg0 (by decide +kernel) (val425 V0)).trans (val425_main_arg0 V0)
theorem val426_main_arg1 (V0 : Valuation τ sig (Elt Ideal)) : val426 V0 (Proc.devRef .tc main_arg1) = aA V0 :=
  (after_keep _ 10 stepOps425_ok main_arg1 (by decide +kernel) (val425 V0)).trans (val425_main_arg1 V0)
theorem val426_main_arg2 (V0 : Valuation τ sig (Elt Ideal)) : val426 V0 (Proc.devRef .tc main_arg2) = aB V0 :=
  (after_keep _ 10 stepOps425_ok main_arg2 (by decide +kernel) (val425 V0)).trans (val425_main_arg2 V0)
theorem val426_main_arg3 (V0 : Valuation τ sig (Elt Ideal)) : val426 V0 (Proc.devRef .tc main_arg3) = aC V0 :=
  (after_keep _ 10 stepOps425_ok main_arg3 (by decide +kernel) (val425 V0)).trans (val425_main_arg3 V0)
theorem val426_main_v3 (V0 : Valuation τ sig (Elt Ideal)) : val426 V0 (Proc.devRef .tc main_v3) = decay (aA V0) :=
  (after_keep _ 10 stepOps425_ok main_v3 (by decide +kernel) (val425 V0)).trans (val425_main_v3 V0)
theorem val426_h (V0 : Valuation τ sig (Elt Ideal)) : val426 V0 (Proc.devRef .tc main_v8515) = hI (aX V0) (aA V0) (aB V0) 425 := by
  refine ((step425_val (val425 V0)).1).trans ?_
  rw [val425_main_arg0 V0, val425_main_v3 V0, val425_main_arg2 V0, val425_h V0]
  exact (hI_at (aX V0) (aA V0) (aB V0) 424 425 (by decide) rfl).symm
theorem val426_y (V0 : Valuation τ sig (Elt Ideal)) : val426 V0 (Proc.devRef .tc main_v8523) = yJ (aX V0) (aA V0) (aB V0) (aC V0) 426 := by
  refine ((step425_val (val425 V0)).2).trans ?_
  rw [val425_main_arg0 V0, val425_main_v3 V0, val425_main_arg2 V0, val425_main_arg3 V0, val425_h V0, val425_y V0]
  rw [← hI_at (aX V0) (aA V0) (aB V0) 424 425 (by decide) rfl]
  exact (yJ_at (aX V0) (aA V0) (aB V0) (aC V0) 425 426 (by decide) rfl).symm
/-- The contents after step 426. -/
def val427 (V0 : Valuation τ sig (Elt Ideal)) : Valuation τ sig (Elt Ideal) := after (stepOps426 (F := Ideal)) (val426 V0)
theorem val427_main_arg0 (V0 : Valuation τ sig (Elt Ideal)) : val427 V0 (Proc.devRef .tc main_arg0) = aX V0 :=
  (after_keep _ 10 stepOps426_ok main_arg0 (by decide +kernel) (val426 V0)).trans (val426_main_arg0 V0)
theorem val427_main_arg1 (V0 : Valuation τ sig (Elt Ideal)) : val427 V0 (Proc.devRef .tc main_arg1) = aA V0 :=
  (after_keep _ 10 stepOps426_ok main_arg1 (by decide +kernel) (val426 V0)).trans (val426_main_arg1 V0)
theorem val427_main_arg2 (V0 : Valuation τ sig (Elt Ideal)) : val427 V0 (Proc.devRef .tc main_arg2) = aB V0 :=
  (after_keep _ 10 stepOps426_ok main_arg2 (by decide +kernel) (val426 V0)).trans (val426_main_arg2 V0)
theorem val427_main_arg3 (V0 : Valuation τ sig (Elt Ideal)) : val427 V0 (Proc.devRef .tc main_arg3) = aC V0 :=
  (after_keep _ 10 stepOps426_ok main_arg3 (by decide +kernel) (val426 V0)).trans (val426_main_arg3 V0)
theorem val427_main_v3 (V0 : Valuation τ sig (Elt Ideal)) : val427 V0 (Proc.devRef .tc main_v3) = decay (aA V0) :=
  (after_keep _ 10 stepOps426_ok main_v3 (by decide +kernel) (val426 V0)).trans (val426_main_v3 V0)
theorem val427_h (V0 : Valuation τ sig (Elt Ideal)) : val427 V0 (Proc.devRef .tc main_v8535) = hI (aX V0) (aA V0) (aB V0) 426 := by
  refine ((step426_val (val426 V0)).1).trans ?_
  rw [val426_main_arg0 V0, val426_main_v3 V0, val426_main_arg2 V0, val426_h V0]
  exact (hI_at (aX V0) (aA V0) (aB V0) 425 426 (by decide) rfl).symm
theorem val427_y (V0 : Valuation τ sig (Elt Ideal)) : val427 V0 (Proc.devRef .tc main_v8543) = yJ (aX V0) (aA V0) (aB V0) (aC V0) 427 := by
  refine ((step426_val (val426 V0)).2).trans ?_
  rw [val426_main_arg0 V0, val426_main_v3 V0, val426_main_arg2 V0, val426_main_arg3 V0, val426_h V0, val426_y V0]
  rw [← hI_at (aX V0) (aA V0) (aB V0) 425 426 (by decide) rfl]
  exact (yJ_at (aX V0) (aA V0) (aB V0) (aC V0) 426 427 (by decide) rfl).symm
/-- The contents after step 427. -/
def val428 (V0 : Valuation τ sig (Elt Ideal)) : Valuation τ sig (Elt Ideal) := after (stepOps427 (F := Ideal)) (val427 V0)
theorem val428_main_arg0 (V0 : Valuation τ sig (Elt Ideal)) : val428 V0 (Proc.devRef .tc main_arg0) = aX V0 :=
  (after_keep _ 10 stepOps427_ok main_arg0 (by decide +kernel) (val427 V0)).trans (val427_main_arg0 V0)
theorem val428_main_arg1 (V0 : Valuation τ sig (Elt Ideal)) : val428 V0 (Proc.devRef .tc main_arg1) = aA V0 :=
  (after_keep _ 10 stepOps427_ok main_arg1 (by decide +kernel) (val427 V0)).trans (val427_main_arg1 V0)
theorem val428_main_arg2 (V0 : Valuation τ sig (Elt Ideal)) : val428 V0 (Proc.devRef .tc main_arg2) = aB V0 :=
  (after_keep _ 10 stepOps427_ok main_arg2 (by decide +kernel) (val427 V0)).trans (val427_main_arg2 V0)
theorem val428_main_arg3 (V0 : Valuation τ sig (Elt Ideal)) : val428 V0 (Proc.devRef .tc main_arg3) = aC V0 :=
  (after_keep _ 10 stepOps427_ok main_arg3 (by decide +kernel) (val427 V0)).trans (val427_main_arg3 V0)
theorem val428_main_v3 (V0 : Valuation τ sig (Elt Ideal)) : val428 V0 (Proc.devRef .tc main_v3) = decay (aA V0) :=
  (after_keep _ 10 stepOps427_ok main_v3 (by decide +kernel) (val427 V0)).trans (val427_main_v3 V0)
theorem val428_h (V0 : Valuation τ sig (Elt Ideal)) : val428 V0 (Proc.devRef .tc main_v8555) = hI (aX V0) (aA V0) (aB V0) 427 := by
  refine ((step427_val (val427 V0)).1).trans ?_
  rw [val427_main_arg0 V0, val427_main_v3 V0, val427_main_arg2 V0, val427_h V0]
  exact (hI_at (aX V0) (aA V0) (aB V0) 426 427 (by decide) rfl).symm
theorem val428_y (V0 : Valuation τ sig (Elt Ideal)) : val428 V0 (Proc.devRef .tc main_v8563) = yJ (aX V0) (aA V0) (aB V0) (aC V0) 428 := by
  refine ((step427_val (val427 V0)).2).trans ?_
  rw [val427_main_arg0 V0, val427_main_v3 V0, val427_main_arg2 V0, val427_main_arg3 V0, val427_h V0, val427_y V0]
  rw [← hI_at (aX V0) (aA V0) (aB V0) 426 427 (by decide) rfl]
  exact (yJ_at (aX V0) (aA V0) (aB V0) (aC V0) 427 428 (by decide) rfl).symm
/-- The contents after step 428. -/
def val429 (V0 : Valuation τ sig (Elt Ideal)) : Valuation τ sig (Elt Ideal) := after (stepOps428 (F := Ideal)) (val428 V0)
theorem val429_main_arg0 (V0 : Valuation τ sig (Elt Ideal)) : val429 V0 (Proc.devRef .tc main_arg0) = aX V0 :=
  (after_keep _ 10 stepOps428_ok main_arg0 (by decide +kernel) (val428 V0)).trans (val428_main_arg0 V0)
theorem val429_main_arg1 (V0 : Valuation τ sig (Elt Ideal)) : val429 V0 (Proc.devRef .tc main_arg1) = aA V0 :=
  (after_keep _ 10 stepOps428_ok main_arg1 (by decide +kernel) (val428 V0)).trans (val428_main_arg1 V0)
theorem val429_main_arg2 (V0 : Valuation τ sig (Elt Ideal)) : val429 V0 (Proc.devRef .tc main_arg2) = aB V0 :=
  (after_keep _ 10 stepOps428_ok main_arg2 (by decide +kernel) (val428 V0)).trans (val428_main_arg2 V0)
theorem val429_main_arg3 (V0 : Valuation τ sig (Elt Ideal)) : val429 V0 (Proc.devRef .tc main_arg3) = aC V0 :=
  (after_keep _ 10 stepOps428_ok main_arg3 (by decide +kernel) (val428 V0)).trans (val428_main_arg3 V0)
theorem val429_main_v3 (V0 : Valuation τ sig (Elt Ideal)) : val429 V0 (Proc.devRef .tc main_v3) = decay (aA V0) :=
  (after_keep _ 10 stepOps428_ok main_v3 (by decide +kernel) (val428 V0)).trans (val428_main_v3 V0)
theorem val429_h (V0 : Valuation τ sig (Elt Ideal)) : val429 V0 (Proc.devRef .tc main_v8575) = hI (aX V0) (aA V0) (aB V0) 428 := by
  refine ((step428_val (val428 V0)).1).trans ?_
  rw [val428_main_arg0 V0, val428_main_v3 V0, val428_main_arg2 V0, val428_h V0]
  exact (hI_at (aX V0) (aA V0) (aB V0) 427 428 (by decide) rfl).symm
theorem val429_y (V0 : Valuation τ sig (Elt Ideal)) : val429 V0 (Proc.devRef .tc main_v8583) = yJ (aX V0) (aA V0) (aB V0) (aC V0) 429 := by
  refine ((step428_val (val428 V0)).2).trans ?_
  rw [val428_main_arg0 V0, val428_main_v3 V0, val428_main_arg2 V0, val428_main_arg3 V0, val428_h V0, val428_y V0]
  rw [← hI_at (aX V0) (aA V0) (aB V0) 427 428 (by decide) rfl]
  exact (yJ_at (aX V0) (aA V0) (aB V0) (aC V0) 428 429 (by decide) rfl).symm
/-- The contents after step 429. -/
def val430 (V0 : Valuation τ sig (Elt Ideal)) : Valuation τ sig (Elt Ideal) := after (stepOps429 (F := Ideal)) (val429 V0)
theorem val430_main_arg0 (V0 : Valuation τ sig (Elt Ideal)) : val430 V0 (Proc.devRef .tc main_arg0) = aX V0 :=
  (after_keep _ 10 stepOps429_ok main_arg0 (by decide +kernel) (val429 V0)).trans (val429_main_arg0 V0)
theorem val430_main_arg1 (V0 : Valuation τ sig (Elt Ideal)) : val430 V0 (Proc.devRef .tc main_arg1) = aA V0 :=
  (after_keep _ 10 stepOps429_ok main_arg1 (by decide +kernel) (val429 V0)).trans (val429_main_arg1 V0)
theorem val430_main_arg2 (V0 : Valuation τ sig (Elt Ideal)) : val430 V0 (Proc.devRef .tc main_arg2) = aB V0 :=
  (after_keep _ 10 stepOps429_ok main_arg2 (by decide +kernel) (val429 V0)).trans (val429_main_arg2 V0)
theorem val430_main_arg3 (V0 : Valuation τ sig (Elt Ideal)) : val430 V0 (Proc.devRef .tc main_arg3) = aC V0 :=
  (after_keep _ 10 stepOps429_ok main_arg3 (by decide +kernel) (val429 V0)).trans (val429_main_arg3 V0)
theorem val430_main_v3 (V0 : Valuation τ sig (Elt Ideal)) : val430 V0 (Proc.devRef .tc main_v3) = decay (aA V0) :=
  (after_keep _ 10 stepOps429_ok main_v3 (by decide +kernel) (val429 V0)).trans (val429_main_v3 V0)
theorem val430_h (V0 : Valuation τ sig (Elt Ideal)) : val430 V0 (Proc.devRef .tc main_v8595) = hI (aX V0) (aA V0) (aB V0) 429 := by
  refine ((step429_val (val429 V0)).1).trans ?_
  rw [val429_main_arg0 V0, val429_main_v3 V0, val429_main_arg2 V0, val429_h V0]
  exact (hI_at (aX V0) (aA V0) (aB V0) 428 429 (by decide) rfl).symm
theorem val430_y (V0 : Valuation τ sig (Elt Ideal)) : val430 V0 (Proc.devRef .tc main_v8603) = yJ (aX V0) (aA V0) (aB V0) (aC V0) 430 := by
  refine ((step429_val (val429 V0)).2).trans ?_
  rw [val429_main_arg0 V0, val429_main_v3 V0, val429_main_arg2 V0, val429_main_arg3 V0, val429_h V0, val429_y V0]
  rw [← hI_at (aX V0) (aA V0) (aB V0) 428 429 (by decide) rfl]
  exact (yJ_at (aX V0) (aA V0) (aB V0) (aC V0) 429 430 (by decide) rfl).symm
/-- The contents after step 430. -/
def val431 (V0 : Valuation τ sig (Elt Ideal)) : Valuation τ sig (Elt Ideal) := after (stepOps430 (F := Ideal)) (val430 V0)
theorem val431_main_arg0 (V0 : Valuation τ sig (Elt Ideal)) : val431 V0 (Proc.devRef .tc main_arg0) = aX V0 :=
  (after_keep _ 10 stepOps430_ok main_arg0 (by decide +kernel) (val430 V0)).trans (val430_main_arg0 V0)
theorem val431_main_arg1 (V0 : Valuation τ sig (Elt Ideal)) : val431 V0 (Proc.devRef .tc main_arg1) = aA V0 :=
  (after_keep _ 10 stepOps430_ok main_arg1 (by decide +kernel) (val430 V0)).trans (val430_main_arg1 V0)
theorem val431_main_arg2 (V0 : Valuation τ sig (Elt Ideal)) : val431 V0 (Proc.devRef .tc main_arg2) = aB V0 :=
  (after_keep _ 10 stepOps430_ok main_arg2 (by decide +kernel) (val430 V0)).trans (val430_main_arg2 V0)
theorem val431_main_arg3 (V0 : Valuation τ sig (Elt Ideal)) : val431 V0 (Proc.devRef .tc main_arg3) = aC V0 :=
  (after_keep _ 10 stepOps430_ok main_arg3 (by decide +kernel) (val430 V0)).trans (val430_main_arg3 V0)
theorem val431_main_v3 (V0 : Valuation τ sig (Elt Ideal)) : val431 V0 (Proc.devRef .tc main_v3) = decay (aA V0) :=
  (after_keep _ 10 stepOps430_ok main_v3 (by decide +kernel) (val430 V0)).trans (val430_main_v3 V0)
theorem val431_h (V0 : Valuation τ sig (Elt Ideal)) : val431 V0 (Proc.devRef .tc main_v8615) = hI (aX V0) (aA V0) (aB V0) 430 := by
  refine ((step430_val (val430 V0)).1).trans ?_
  rw [val430_main_arg0 V0, val430_main_v3 V0, val430_main_arg2 V0, val430_h V0]
  exact (hI_at (aX V0) (aA V0) (aB V0) 429 430 (by decide) rfl).symm
theorem val431_y (V0 : Valuation τ sig (Elt Ideal)) : val431 V0 (Proc.devRef .tc main_v8623) = yJ (aX V0) (aA V0) (aB V0) (aC V0) 431 := by
  refine ((step430_val (val430 V0)).2).trans ?_
  rw [val430_main_arg0 V0, val430_main_v3 V0, val430_main_arg2 V0, val430_main_arg3 V0, val430_h V0, val430_y V0]
  rw [← hI_at (aX V0) (aA V0) (aB V0) 429 430 (by decide) rfl]
  exact (yJ_at (aX V0) (aA V0) (aB V0) (aC V0) 430 431 (by decide) rfl).symm
/-- The contents after step 431. -/
def val432 (V0 : Valuation τ sig (Elt Ideal)) : Valuation τ sig (Elt Ideal) := after (stepOps431 (F := Ideal)) (val431 V0)
theorem val432_main_arg0 (V0 : Valuation τ sig (Elt Ideal)) : val432 V0 (Proc.devRef .tc main_arg0) = aX V0 :=
  (after_keep _ 10 stepOps431_ok main_arg0 (by decide +kernel) (val431 V0)).trans (val431_main_arg0 V0)
theorem val432_main_arg1 (V0 : Valuation τ sig (Elt Ideal)) : val432 V0 (Proc.devRef .tc main_arg1) = aA V0 :=
  (after_keep _ 10 stepOps431_ok main_arg1 (by decide +kernel) (val431 V0)).trans (val431_main_arg1 V0)
theorem val432_main_arg2 (V0 : Valuation τ sig (Elt Ideal)) : val432 V0 (Proc.devRef .tc main_arg2) = aB V0 :=
  (after_keep _ 10 stepOps431_ok main_arg2 (by decide +kernel) (val431 V0)).trans (val431_main_arg2 V0)
theorem val432_main_arg3 (V0 : Valuation τ sig (Elt Ideal)) : val432 V0 (Proc.devRef .tc main_arg3) = aC V0 :=
  (after_keep _ 10 stepOps431_ok main_arg3 (by decide +kernel) (val431 V0)).trans (val431_main_arg3 V0)
theorem val432_main_v3 (V0 : Valuation τ sig (Elt Ideal)) : val432 V0 (Proc.devRef .tc main_v3) = decay (aA V0) :=
  (after_keep _ 10 stepOps431_ok main_v3 (by decide +kernel) (val431 V0)).trans (val431_main_v3 V0)
theorem val432_h (V0 : Valuation τ sig (Elt Ideal)) : val432 V0 (Proc.devRef .tc main_v8635) = hI (aX V0) (aA V0) (aB V0) 431 := by
  refine ((step431_val (val431 V0)).1).trans ?_
  rw [val431_main_arg0 V0, val431_main_v3 V0, val431_main_arg2 V0, val431_h V0]
  exact (hI_at (aX V0) (aA V0) (aB V0) 430 431 (by decide) rfl).symm
theorem val432_y (V0 : Valuation τ sig (Elt Ideal)) : val432 V0 (Proc.devRef .tc main_v8643) = yJ (aX V0) (aA V0) (aB V0) (aC V0) 432 := by
  refine ((step431_val (val431 V0)).2).trans ?_
  rw [val431_main_arg0 V0, val431_main_v3 V0, val431_main_arg2 V0, val431_main_arg3 V0, val431_h V0, val431_y V0]
  rw [← hI_at (aX V0) (aA V0) (aB V0) 430 431 (by decide) rfl]
  exact (yJ_at (aX V0) (aA V0) (aB V0) (aC V0) 431 432 (by decide) rfl).symm
/-- The contents after step 432. -/
def val433 (V0 : Valuation τ sig (Elt Ideal)) : Valuation τ sig (Elt Ideal) := after (stepOps432 (F := Ideal)) (val432 V0)
theorem val433_main_arg0 (V0 : Valuation τ sig (Elt Ideal)) : val433 V0 (Proc.devRef .tc main_arg0) = aX V0 :=
  (after_keep _ 10 stepOps432_ok main_arg0 (by decide +kernel) (val432 V0)).trans (val432_main_arg0 V0)
theorem val433_main_arg1 (V0 : Valuation τ sig (Elt Ideal)) : val433 V0 (Proc.devRef .tc main_arg1) = aA V0 :=
  (after_keep _ 10 stepOps432_ok main_arg1 (by decide +kernel) (val432 V0)).trans (val432_main_arg1 V0)
theorem val433_main_arg2 (V0 : Valuation τ sig (Elt Ideal)) : val433 V0 (Proc.devRef .tc main_arg2) = aB V0 :=
  (after_keep _ 10 stepOps432_ok main_arg2 (by decide +kernel) (val432 V0)).trans (val432_main_arg2 V0)
theorem val433_main_arg3 (V0 : Valuation τ sig (Elt Ideal)) : val433 V0 (Proc.devRef .tc main_arg3) = aC V0 :=
  (after_keep _ 10 stepOps432_ok main_arg3 (by decide +kernel) (val432 V0)).trans (val432_main_arg3 V0)
theorem val433_main_v3 (V0 : Valuation τ sig (Elt Ideal)) : val433 V0 (Proc.devRef .tc main_v3) = decay (aA V0) :=
  (after_keep _ 10 stepOps432_ok main_v3 (by decide +kernel) (val432 V0)).trans (val432_main_v3 V0)
theorem val433_h (V0 : Valuation τ sig (Elt Ideal)) : val433 V0 (Proc.devRef .tc main_v8655) = hI (aX V0) (aA V0) (aB V0) 432 := by
  refine ((step432_val (val432 V0)).1).trans ?_
  rw [val432_main_arg0 V0, val432_main_v3 V0, val432_main_arg2 V0, val432_h V0]
  exact (hI_at (aX V0) (aA V0) (aB V0) 431 432 (by decide) rfl).symm
theorem val433_y (V0 : Valuation τ sig (Elt Ideal)) : val433 V0 (Proc.devRef .tc main_v8663) = yJ (aX V0) (aA V0) (aB V0) (aC V0) 433 := by
  refine ((step432_val (val432 V0)).2).trans ?_
  rw [val432_main_arg0 V0, val432_main_v3 V0, val432_main_arg2 V0, val432_main_arg3 V0, val432_h V0, val432_y V0]
  rw [← hI_at (aX V0) (aA V0) (aB V0) 431 432 (by decide) rfl]
  exact (yJ_at (aX V0) (aA V0) (aB V0) (aC V0) 432 433 (by decide) rfl).symm
/-- The contents after step 433. -/
def val434 (V0 : Valuation τ sig (Elt Ideal)) : Valuation τ sig (Elt Ideal) := after (stepOps433 (F := Ideal)) (val433 V0)
theorem val434_main_arg0 (V0 : Valuation τ sig (Elt Ideal)) : val434 V0 (Proc.devRef .tc main_arg0) = aX V0 :=
  (after_keep _ 10 stepOps433_ok main_arg0 (by decide +kernel) (val433 V0)).trans (val433_main_arg0 V0)
theorem val434_main_arg1 (V0 : Valuation τ sig (Elt Ideal)) : val434 V0 (Proc.devRef .tc main_arg1) = aA V0 :=
  (after_keep _ 10 stepOps433_ok main_arg1 (by decide +kernel) (val433 V0)).trans (val433_main_arg1 V0)
theorem val434_main_arg2 (V0 : Valuation τ sig (Elt Ideal)) : val434 V0 (Proc.devRef .tc main_arg2) = aB V0 :=
  (after_keep _ 10 stepOps433_ok main_arg2 (by decide +kernel) (val433 V0)).trans (val433_main_arg2 V0)
theorem val434_main_arg3 (V0 : Valuation τ sig (Elt Ideal)) : val434 V0 (Proc.devRef .tc main_arg3) = aC V0 :=
  (after_keep _ 10 stepOps433_ok main_arg3 (by decide +kernel) (val433 V0)).trans (val433_main_arg3 V0)
theorem val434_main_v3 (V0 : Valuation τ sig (Elt Ideal)) : val434 V0 (Proc.devRef .tc main_v3) = decay (aA V0) :=
  (after_keep _ 10 stepOps433_ok main_v3 (by decide +kernel) (val433 V0)).trans (val433_main_v3 V0)
theorem val434_h (V0 : Valuation τ sig (Elt Ideal)) : val434 V0 (Proc.devRef .tc main_v8675) = hI (aX V0) (aA V0) (aB V0) 433 := by
  refine ((step433_val (val433 V0)).1).trans ?_
  rw [val433_main_arg0 V0, val433_main_v3 V0, val433_main_arg2 V0, val433_h V0]
  exact (hI_at (aX V0) (aA V0) (aB V0) 432 433 (by decide) rfl).symm
theorem val434_y (V0 : Valuation τ sig (Elt Ideal)) : val434 V0 (Proc.devRef .tc main_v8683) = yJ (aX V0) (aA V0) (aB V0) (aC V0) 434 := by
  refine ((step433_val (val433 V0)).2).trans ?_
  rw [val433_main_arg0 V0, val433_main_v3 V0, val433_main_arg2 V0, val433_main_arg3 V0, val433_h V0, val433_y V0]
  rw [← hI_at (aX V0) (aA V0) (aB V0) 432 433 (by decide) rfl]
  exact (yJ_at (aX V0) (aA V0) (aB V0) (aC V0) 433 434 (by decide) rfl).symm
/-- The contents after step 434. -/
def val435 (V0 : Valuation τ sig (Elt Ideal)) : Valuation τ sig (Elt Ideal) := after (stepOps434 (F := Ideal)) (val434 V0)
theorem val435_main_arg0 (V0 : Valuation τ sig (Elt Ideal)) : val435 V0 (Proc.devRef .tc main_arg0) = aX V0 :=
  (after_keep _ 10 stepOps434_ok main_arg0 (by decide +kernel) (val434 V0)).trans (val434_main_arg0 V0)
theorem val435_main_arg1 (V0 : Valuation τ sig (Elt Ideal)) : val435 V0 (Proc.devRef .tc main_arg1) = aA V0 :=
  (after_keep _ 10 stepOps434_ok main_arg1 (by decide +kernel) (val434 V0)).trans (val434_main_arg1 V0)
theorem val435_main_arg2 (V0 : Valuation τ sig (Elt Ideal)) : val435 V0 (Proc.devRef .tc main_arg2) = aB V0 :=
  (after_keep _ 10 stepOps434_ok main_arg2 (by decide +kernel) (val434 V0)).trans (val434_main_arg2 V0)
theorem val435_main_arg3 (V0 : Valuation τ sig (Elt Ideal)) : val435 V0 (Proc.devRef .tc main_arg3) = aC V0 :=
  (after_keep _ 10 stepOps434_ok main_arg3 (by decide +kernel) (val434 V0)).trans (val434_main_arg3 V0)
theorem val435_main_v3 (V0 : Valuation τ sig (Elt Ideal)) : val435 V0 (Proc.devRef .tc main_v3) = decay (aA V0) :=
  (after_keep _ 10 stepOps434_ok main_v3 (by decide +kernel) (val434 V0)).trans (val434_main_v3 V0)
theorem val435_h (V0 : Valuation τ sig (Elt Ideal)) : val435 V0 (Proc.devRef .tc main_v8695) = hI (aX V0) (aA V0) (aB V0) 434 := by
  refine ((step434_val (val434 V0)).1).trans ?_
  rw [val434_main_arg0 V0, val434_main_v3 V0, val434_main_arg2 V0, val434_h V0]
  exact (hI_at (aX V0) (aA V0) (aB V0) 433 434 (by decide) rfl).symm
theorem val435_y (V0 : Valuation τ sig (Elt Ideal)) : val435 V0 (Proc.devRef .tc main_v8703) = yJ (aX V0) (aA V0) (aB V0) (aC V0) 435 := by
  refine ((step434_val (val434 V0)).2).trans ?_
  rw [val434_main_arg0 V0, val434_main_v3 V0, val434_main_arg2 V0, val434_main_arg3 V0, val434_h V0, val434_y V0]
  rw [← hI_at (aX V0) (aA V0) (aB V0) 433 434 (by decide) rfl]
  exact (yJ_at (aX V0) (aA V0) (aB V0) (aC V0) 434 435 (by decide) rfl).symm
/-- The contents after step 435. -/
def val436 (V0 : Valuation τ sig (Elt Ideal)) : Valuation τ sig (Elt Ideal) := after (stepOps435 (F := Ideal)) (val435 V0)
theorem val436_main_arg0 (V0 : Valuation τ sig (Elt Ideal)) : val436 V0 (Proc.devRef .tc main_arg0) = aX V0 :=
  (after_keep _ 10 stepOps435_ok main_arg0 (by decide +kernel) (val435 V0)).trans (val435_main_arg0 V0)
theorem val436_main_arg1 (V0 : Valuation τ sig (Elt Ideal)) : val436 V0 (Proc.devRef .tc main_arg1) = aA V0 :=
  (after_keep _ 10 stepOps435_ok main_arg1 (by decide +kernel) (val435 V0)).trans (val435_main_arg1 V0)
theorem val436_main_arg2 (V0 : Valuation τ sig (Elt Ideal)) : val436 V0 (Proc.devRef .tc main_arg2) = aB V0 :=
  (after_keep _ 10 stepOps435_ok main_arg2 (by decide +kernel) (val435 V0)).trans (val435_main_arg2 V0)
theorem val436_main_arg3 (V0 : Valuation τ sig (Elt Ideal)) : val436 V0 (Proc.devRef .tc main_arg3) = aC V0 :=
  (after_keep _ 10 stepOps435_ok main_arg3 (by decide +kernel) (val435 V0)).trans (val435_main_arg3 V0)
theorem val436_main_v3 (V0 : Valuation τ sig (Elt Ideal)) : val436 V0 (Proc.devRef .tc main_v3) = decay (aA V0) :=
  (after_keep _ 10 stepOps435_ok main_v3 (by decide +kernel) (val435 V0)).trans (val435_main_v3 V0)
theorem val436_h (V0 : Valuation τ sig (Elt Ideal)) : val436 V0 (Proc.devRef .tc main_v8715) = hI (aX V0) (aA V0) (aB V0) 435 := by
  refine ((step435_val (val435 V0)).1).trans ?_
  rw [val435_main_arg0 V0, val435_main_v3 V0, val435_main_arg2 V0, val435_h V0]
  exact (hI_at (aX V0) (aA V0) (aB V0) 434 435 (by decide) rfl).symm
theorem val436_y (V0 : Valuation τ sig (Elt Ideal)) : val436 V0 (Proc.devRef .tc main_v8723) = yJ (aX V0) (aA V0) (aB V0) (aC V0) 436 := by
  refine ((step435_val (val435 V0)).2).trans ?_
  rw [val435_main_arg0 V0, val435_main_v3 V0, val435_main_arg2 V0, val435_main_arg3 V0, val435_h V0, val435_y V0]
  rw [← hI_at (aX V0) (aA V0) (aB V0) 434 435 (by decide) rfl]
  exact (yJ_at (aX V0) (aA V0) (aB V0) (aC V0) 435 436 (by decide) rfl).symm
/-- The contents after step 436. -/
def val437 (V0 : Valuation τ sig (Elt Ideal)) : Valuation τ sig (Elt Ideal) := after (stepOps436 (F := Ideal)) (val436 V0)
theorem val437_main_arg0 (V0 : Valuation τ sig (Elt Ideal)) : val437 V0 (Proc.devRef .tc main_arg0) = aX V0 :=
  (after_keep _ 10 stepOps436_ok main_arg0 (by decide +kernel) (val436 V0)).trans (val436_main_arg0 V0)
theorem val437_main_arg1 (V0 : Valuation τ sig (Elt Ideal)) : val437 V0 (Proc.devRef .tc main_arg1) = aA V0 :=
  (after_keep _ 10 stepOps436_ok main_arg1 (by decide +kernel) (val436 V0)).trans (val436_main_arg1 V0)
theorem val437_main_arg2 (V0 : Valuation τ sig (Elt Ideal)) : val437 V0 (Proc.devRef .tc main_arg2) = aB V0 :=
  (after_keep _ 10 stepOps436_ok main_arg2 (by decide +kernel) (val436 V0)).trans (val436_main_arg2 V0)
theorem val437_main_arg3 (V0 : Valuation τ sig (Elt Ideal)) : val437 V0 (Proc.devRef .tc main_arg3) = aC V0 :=
  (after_keep _ 10 stepOps436_ok main_arg3 (by decide +kernel) (val436 V0)).trans (val436_main_arg3 V0)
theorem val437_main_v3 (V0 : Valuation τ sig (Elt Ideal)) : val437 V0 (Proc.devRef .tc main_v3) = decay (aA V0) :=
  (after_keep _ 10 stepOps436_ok main_v3 (by decide +kernel) (val436 V0)).trans (val436_main_v3 V0)
theorem val437_h (V0 : Valuation τ sig (Elt Ideal)) : val437 V0 (Proc.devRef .tc main_v8735) = hI (aX V0) (aA V0) (aB V0) 436 := by
  refine ((step436_val (val436 V0)).1).trans ?_
  rw [val436_main_arg0 V0, val436_main_v3 V0, val436_main_arg2 V0, val436_h V0]
  exact (hI_at (aX V0) (aA V0) (aB V0) 435 436 (by decide) rfl).symm
theorem val437_y (V0 : Valuation τ sig (Elt Ideal)) : val437 V0 (Proc.devRef .tc main_v8743) = yJ (aX V0) (aA V0) (aB V0) (aC V0) 437 := by
  refine ((step436_val (val436 V0)).2).trans ?_
  rw [val436_main_arg0 V0, val436_main_v3 V0, val436_main_arg2 V0, val436_main_arg3 V0, val436_h V0, val436_y V0]
  rw [← hI_at (aX V0) (aA V0) (aB V0) 435 436 (by decide) rfl]
  exact (yJ_at (aX V0) (aA V0) (aB V0) (aC V0) 436 437 (by decide) rfl).symm
/-- The contents after step 437. -/
def val438 (V0 : Valuation τ sig (Elt Ideal)) : Valuation τ sig (Elt Ideal) := after (stepOps437 (F := Ideal)) (val437 V0)
theorem val438_main_arg0 (V0 : Valuation τ sig (Elt Ideal)) : val438 V0 (Proc.devRef .tc main_arg0) = aX V0 :=
  (after_keep _ 10 stepOps437_ok main_arg0 (by decide +kernel) (val437 V0)).trans (val437_main_arg0 V0)
theorem val438_main_arg1 (V0 : Valuation τ sig (Elt Ideal)) : val438 V0 (Proc.devRef .tc main_arg1) = aA V0 :=
  (after_keep _ 10 stepOps437_ok main_arg1 (by decide +kernel) (val437 V0)).trans (val437_main_arg1 V0)
theorem val438_main_arg2 (V0 : Valuation τ sig (Elt Ideal)) : val438 V0 (Proc.devRef .tc main_arg2) = aB V0 :=
  (after_keep _ 10 stepOps437_ok main_arg2 (by decide +kernel) (val437 V0)).trans (val437_main_arg2 V0)
theorem val438_main_arg3 (V0 : Valuation τ sig (Elt Ideal)) : val438 V0 (Proc.devRef .tc main_arg3) = aC V0 :=
  (after_keep _ 10 stepOps437_ok main_arg3 (by decide +kernel) (val437 V0)).trans (val437_main_arg3 V0)
theorem val438_main_v3 (V0 : Valuation τ sig (Elt Ideal)) : val438 V0 (Proc.devRef .tc main_v3) = decay (aA V0) :=
  (after_keep _ 10 stepOps437_ok main_v3 (by decide +kernel) (val437 V0)).trans (val437_main_v3 V0)
theorem val438_h (V0 : Valuation τ sig (Elt Ideal)) : val438 V0 (Proc.devRef .tc main_v8755) = hI (aX V0) (aA V0) (aB V0) 437 := by
  refine ((step437_val (val437 V0)).1).trans ?_
  rw [val437_main_arg0 V0, val437_main_v3 V0, val437_main_arg2 V0, val437_h V0]
  exact (hI_at (aX V0) (aA V0) (aB V0) 436 437 (by decide) rfl).symm
theorem val438_y (V0 : Valuation τ sig (Elt Ideal)) : val438 V0 (Proc.devRef .tc main_v8763) = yJ (aX V0) (aA V0) (aB V0) (aC V0) 438 := by
  refine ((step437_val (val437 V0)).2).trans ?_
  rw [val437_main_arg0 V0, val437_main_v3 V0, val437_main_arg2 V0, val437_main_arg3 V0, val437_h V0, val437_y V0]
  rw [← hI_at (aX V0) (aA V0) (aB V0) 436 437 (by decide) rfl]
  exact (yJ_at (aX V0) (aA V0) (aB V0) (aC V0) 437 438 (by decide) rfl).symm
/-- The contents after step 438. -/
def val439 (V0 : Valuation τ sig (Elt Ideal)) : Valuation τ sig (Elt Ideal) := after (stepOps438 (F := Ideal)) (val438 V0)
theorem val439_main_arg0 (V0 : Valuation τ sig (Elt Ideal)) : val439 V0 (Proc.devRef .tc main_arg0) = aX V0 :=
  (after_keep _ 10 stepOps438_ok main_arg0 (by decide +kernel) (val438 V0)).trans (val438_main_arg0 V0)
theorem val439_main_arg1 (V0 : Valuation τ sig (Elt Ideal)) : val439 V0 (Proc.devRef .tc main_arg1) = aA V0 :=
  (after_keep _ 10 stepOps438_ok main_arg1 (by decide +kernel) (val438 V0)).trans (val438_main_arg1 V0)
theorem val439_main_arg2 (V0 : Valuation τ sig (Elt Ideal)) : val439 V0 (Proc.devRef .tc main_arg2) = aB V0 :=
  (after_keep _ 10 stepOps438_ok main_arg2 (by decide +kernel) (val438 V0)).trans (val438_main_arg2 V0)
theorem val439_main_arg3 (V0 : Valuation τ sig (Elt Ideal)) : val439 V0 (Proc.devRef .tc main_arg3) = aC V0 :=
  (after_keep _ 10 stepOps438_ok main_arg3 (by decide +kernel) (val438 V0)).trans (val438_main_arg3 V0)
theorem val439_main_v3 (V0 : Valuation τ sig (Elt Ideal)) : val439 V0 (Proc.devRef .tc main_v3) = decay (aA V0) :=
  (after_keep _ 10 stepOps438_ok main_v3 (by decide +kernel) (val438 V0)).trans (val438_main_v3 V0)
theorem val439_h (V0 : Valuation τ sig (Elt Ideal)) : val439 V0 (Proc.devRef .tc main_v8775) = hI (aX V0) (aA V0) (aB V0) 438 := by
  refine ((step438_val (val438 V0)).1).trans ?_
  rw [val438_main_arg0 V0, val438_main_v3 V0, val438_main_arg2 V0, val438_h V0]
  exact (hI_at (aX V0) (aA V0) (aB V0) 437 438 (by decide) rfl).symm
theorem val439_y (V0 : Valuation τ sig (Elt Ideal)) : val439 V0 (Proc.devRef .tc main_v8783) = yJ (aX V0) (aA V0) (aB V0) (aC V0) 439 := by
  refine ((step438_val (val438 V0)).2).trans ?_
  rw [val438_main_arg0 V0, val438_main_v3 V0, val438_main_arg2 V0, val438_main_arg3 V0, val438_h V0, val438_y V0]
  rw [← hI_at (aX V0) (aA V0) (aB V0) 437 438 (by decide) rfl]
  exact (yJ_at (aX V0) (aA V0) (aB V0) (aC V0) 438 439 (by decide) rfl).symm
/-- The contents after step 439. -/
def val440 (V0 : Valuation τ sig (Elt Ideal)) : Valuation τ sig (Elt Ideal) := after (stepOps439 (F := Ideal)) (val439 V0)
theorem val440_main_arg0 (V0 : Valuation τ sig (Elt Ideal)) : val440 V0 (Proc.devRef .tc main_arg0) = aX V0 :=
  (after_keep _ 10 stepOps439_ok main_arg0 (by decide +kernel) (val439 V0)).trans (val439_main_arg0 V0)
theorem val440_main_arg1 (V0 : Valuation τ sig (Elt Ideal)) : val440 V0 (Proc.devRef .tc main_arg1) = aA V0 :=
  (after_keep _ 10 stepOps439_ok main_arg1 (by decide +kernel) (val439 V0)).trans (val439_main_arg1 V0)
theorem val440_main_arg2 (V0 : Valuation τ sig (Elt Ideal)) : val440 V0 (Proc.devRef .tc main_arg2) = aB V0 :=
  (after_keep _ 10 stepOps439_ok main_arg2 (by decide +kernel) (val439 V0)).trans (val439_main_arg2 V0)
theorem val440_main_arg3 (V0 : Valuation τ sig (Elt Ideal)) : val440 V0 (Proc.devRef .tc main_arg3) = aC V0 :=
  (after_keep _ 10 stepOps439_ok main_arg3 (by decide +kernel) (val439 V0)).trans (val439_main_arg3 V0)
theorem val440_main_v3 (V0 : Valuation τ sig (Elt Ideal)) : val440 V0 (Proc.devRef .tc main_v3) = decay (aA V0) :=
  (after_keep _ 10 stepOps439_ok main_v3 (by decide +kernel) (val439 V0)).trans (val439_main_v3 V0)
theorem val440_h (V0 : Valuation τ sig (Elt Ideal)) : val440 V0 (Proc.devRef .tc main_v8795) = hI (aX V0) (aA V0) (aB V0) 439 := by
  refine ((step439_val (val439 V0)).1).trans ?_
  rw [val439_main_arg0 V0, val439_main_v3 V0, val439_main_arg2 V0, val439_h V0]
  exact (hI_at (aX V0) (aA V0) (aB V0) 438 439 (by decide) rfl).symm
theorem val440_y (V0 : Valuation τ sig (Elt Ideal)) : val440 V0 (Proc.devRef .tc main_v8803) = yJ (aX V0) (aA V0) (aB V0) (aC V0) 440 := by
  refine ((step439_val (val439 V0)).2).trans ?_
  rw [val439_main_arg0 V0, val439_main_v3 V0, val439_main_arg2 V0, val439_main_arg3 V0, val439_h V0, val439_y V0]
  rw [← hI_at (aX V0) (aA V0) (aB V0) 438 439 (by decide) rfl]
  exact (yJ_at (aX V0) (aA V0) (aB V0) (aC V0) 439 440 (by decide) rfl).symm
/-- The contents after step 440. -/
def val441 (V0 : Valuation τ sig (Elt Ideal)) : Valuation τ sig (Elt Ideal) := after (stepOps440 (F := Ideal)) (val440 V0)
theorem val441_main_arg0 (V0 : Valuation τ sig (Elt Ideal)) : val441 V0 (Proc.devRef .tc main_arg0) = aX V0 :=
  (after_keep _ 10 stepOps440_ok main_arg0 (by decide +kernel) (val440 V0)).trans (val440_main_arg0 V0)
theorem val441_main_arg1 (V0 : Valuation τ sig (Elt Ideal)) : val441 V0 (Proc.devRef .tc main_arg1) = aA V0 :=
  (after_keep _ 10 stepOps440_ok main_arg1 (by decide +kernel) (val440 V0)).trans (val440_main_arg1 V0)
theorem val441_main_arg2 (V0 : Valuation τ sig (Elt Ideal)) : val441 V0 (Proc.devRef .tc main_arg2) = aB V0 :=
  (after_keep _ 10 stepOps440_ok main_arg2 (by decide +kernel) (val440 V0)).trans (val440_main_arg2 V0)
theorem val441_main_arg3 (V0 : Valuation τ sig (Elt Ideal)) : val441 V0 (Proc.devRef .tc main_arg3) = aC V0 :=
  (after_keep _ 10 stepOps440_ok main_arg3 (by decide +kernel) (val440 V0)).trans (val440_main_arg3 V0)
theorem val441_main_v3 (V0 : Valuation τ sig (Elt Ideal)) : val441 V0 (Proc.devRef .tc main_v3) = decay (aA V0) :=
  (after_keep _ 10 stepOps440_ok main_v3 (by decide +kernel) (val440 V0)).trans (val440_main_v3 V0)
theorem val441_h (V0 : Valuation τ sig (Elt Ideal)) : val441 V0 (Proc.devRef .tc main_v8815) = hI (aX V0) (aA V0) (aB V0) 440 := by
  refine ((step440_val (val440 V0)).1).trans ?_
  rw [val440_main_arg0 V0, val440_main_v3 V0, val440_main_arg2 V0, val440_h V0]
  exact (hI_at (aX V0) (aA V0) (aB V0) 439 440 (by decide) rfl).symm
theorem val441_y (V0 : Valuation τ sig (Elt Ideal)) : val441 V0 (Proc.devRef .tc main_v8823) = yJ (aX V0) (aA V0) (aB V0) (aC V0) 441 := by
  refine ((step440_val (val440 V0)).2).trans ?_
  rw [val440_main_arg0 V0, val440_main_v3 V0, val440_main_arg2 V0, val440_main_arg3 V0, val440_h V0, val440_y V0]
  rw [← hI_at (aX V0) (aA V0) (aB V0) 439 440 (by decide) rfl]
  exact (yJ_at (aX V0) (aA V0) (aB V0) (aC V0) 440 441 (by decide) rfl).symm
/-- The contents after step 441. -/
def val442 (V0 : Valuation τ sig (Elt Ideal)) : Valuation τ sig (Elt Ideal) := after (stepOps441 (F := Ideal)) (val441 V0)
theorem val442_main_arg0 (V0 : Valuation τ sig (Elt Ideal)) : val442 V0 (Proc.devRef .tc main_arg0) = aX V0 :=
  (after_keep _ 10 stepOps441_ok main_arg0 (by decide +kernel) (val441 V0)).trans (val441_main_arg0 V0)
theorem val442_main_arg1 (V0 : Valuation τ sig (Elt Ideal)) : val442 V0 (Proc.devRef .tc main_arg1) = aA V0 :=
  (after_keep _ 10 stepOps441_ok main_arg1 (by decide +kernel) (val441 V0)).trans (val441_main_arg1 V0)
theorem val442_main_arg2 (V0 : Valuation τ sig (Elt Ideal)) : val442 V0 (Proc.devRef .tc main_arg2) = aB V0 :=
  (after_keep _ 10 stepOps441_ok main_arg2 (by decide +kernel) (val441 V0)).trans (val441_main_arg2 V0)
theorem val442_main_arg3 (V0 : Valuation τ sig (Elt Ideal)) : val442 V0 (Proc.devRef .tc main_arg3) = aC V0 :=
  (after_keep _ 10 stepOps441_ok main_arg3 (by decide +kernel) (val441 V0)).trans (val441_main_arg3 V0)
theorem val442_main_v3 (V0 : Valuation τ sig (Elt Ideal)) : val442 V0 (Proc.devRef .tc main_v3) = decay (aA V0) :=
  (after_keep _ 10 stepOps441_ok main_v3 (by decide +kernel) (val441 V0)).trans (val441_main_v3 V0)
theorem val442_h (V0 : Valuation τ sig (Elt Ideal)) : val442 V0 (Proc.devRef .tc main_v8835) = hI (aX V0) (aA V0) (aB V0) 441 := by
  refine ((step441_val (val441 V0)).1).trans ?_
  rw [val441_main_arg0 V0, val441_main_v3 V0, val441_main_arg2 V0, val441_h V0]
  exact (hI_at (aX V0) (aA V0) (aB V0) 440 441 (by decide) rfl).symm
theorem val442_y (V0 : Valuation τ sig (Elt Ideal)) : val442 V0 (Proc.devRef .tc main_v8843) = yJ (aX V0) (aA V0) (aB V0) (aC V0) 442 := by
  refine ((step441_val (val441 V0)).2).trans ?_
  rw [val441_main_arg0 V0, val441_main_v3 V0, val441_main_arg2 V0, val441_main_arg3 V0, val441_h V0, val441_y V0]
  rw [← hI_at (aX V0) (aA V0) (aB V0) 440 441 (by decide) rfl]
  exact (yJ_at (aX V0) (aA V0) (aB V0) (aC V0) 441 442 (by decide) rfl).symm
/-- The contents after step 442. -/
def val443 (V0 : Valuation τ sig (Elt Ideal)) : Valuation τ sig (Elt Ideal) := after (stepOps442 (F := Ideal)) (val442 V0)
theorem val443_main_arg0 (V0 : Valuation τ sig (Elt Ideal)) : val443 V0 (Proc.devRef .tc main_arg0) = aX V0 :=
  (after_keep _ 10 stepOps442_ok main_arg0 (by decide +kernel) (val442 V0)).trans (val442_main_arg0 V0)
theorem val443_main_arg1 (V0 : Valuation τ sig (Elt Ideal)) : val443 V0 (Proc.devRef .tc main_arg1) = aA V0 :=
  (after_keep _ 10 stepOps442_ok main_arg1 (by decide +kernel) (val442 V0)).trans (val442_main_arg1 V0)
theorem val443_main_arg2 (V0 : Valuation τ sig (Elt Ideal)) : val443 V0 (Proc.devRef .tc main_arg2) = aB V0 :=
  (after_keep _ 10 stepOps442_ok main_arg2 (by decide +kernel) (val442 V0)).trans (val442_main_arg2 V0)
theorem val443_main_arg3 (V0 : Valuation τ sig (Elt Ideal)) : val443 V0 (Proc.devRef .tc main_arg3) = aC V0 :=
  (after_keep _ 10 stepOps442_ok main_arg3 (by decide +kernel) (val442 V0)).trans (val442_main_arg3 V0)
theorem val443_main_v3 (V0 : Valuation τ sig (Elt Ideal)) : val443 V0 (Proc.devRef .tc main_v3) = decay (aA V0) :=
  (after_keep _ 10 stepOps442_ok main_v3 (by decide +kernel) (val442 V0)).trans (val442_main_v3 V0)
theorem val443_h (V0 : Valuation τ sig (Elt Ideal)) : val443 V0 (Proc.devRef .tc main_v8855) = hI (aX V0) (aA V0) (aB V0) 442 := by
  refine ((step442_val (val442 V0)).1).trans ?_
  rw [val442_main_arg0 V0, val442_main_v3 V0, val442_main_arg2 V0, val442_h V0]
  exact (hI_at (aX V0) (aA V0) (aB V0) 441 442 (by decide) rfl).symm
theorem val443_y (V0 : Valuation τ sig (Elt Ideal)) : val443 V0 (Proc.devRef .tc main_v8863) = yJ (aX V0) (aA V0) (aB V0) (aC V0) 443 := by
  refine ((step442_val (val442 V0)).2).trans ?_
  rw [val442_main_arg0 V0, val442_main_v3 V0, val442_main_arg2 V0, val442_main_arg3 V0, val442_h V0, val442_y V0]
  rw [← hI_at (aX V0) (aA V0) (aB V0) 441 442 (by decide) rfl]
  exact (yJ_at (aX V0) (aA V0) (aB V0) (aC V0) 442 443 (by decide) rfl).symm
/-- The contents after step 443. -/
def val444 (V0 : Valuation τ sig (Elt Ideal)) : Valuation τ sig (Elt Ideal) := after (stepOps443 (F := Ideal)) (val443 V0)
theorem val444_main_arg0 (V0 : Valuation τ sig (Elt Ideal)) : val444 V0 (Proc.devRef .tc main_arg0) = aX V0 :=
  (after_keep _ 10 stepOps443_ok main_arg0 (by decide +kernel) (val443 V0)).trans (val443_main_arg0 V0)
theorem val444_main_arg1 (V0 : Valuation τ sig (Elt Ideal)) : val444 V0 (Proc.devRef .tc main_arg1) = aA V0 :=
  (after_keep _ 10 stepOps443_ok main_arg1 (by decide +kernel) (val443 V0)).trans (val443_main_arg1 V0)
theorem val444_main_arg2 (V0 : Valuation τ sig (Elt Ideal)) : val444 V0 (Proc.devRef .tc main_arg2) = aB V0 :=
  (after_keep _ 10 stepOps443_ok main_arg2 (by decide +kernel) (val443 V0)).trans (val443_main_arg2 V0)
theorem val444_main_arg3 (V0 : Valuation τ sig (Elt Ideal)) : val444 V0 (Proc.devRef .tc main_arg3) = aC V0 :=
  (after_keep _ 10 stepOps443_ok main_arg3 (by decide +kernel) (val443 V0)).trans (val443_main_arg3 V0)
theorem val444_main_v3 (V0 : Valuation τ sig (Elt Ideal)) : val444 V0 (Proc.devRef .tc main_v3) = decay (aA V0) :=
  (after_keep _ 10 stepOps443_ok main_v3 (by decide +kernel) (val443 V0)).trans (val443_main_v3 V0)
theorem val444_h (V0 : Valuation τ sig (Elt Ideal)) : val444 V0 (Proc.devRef .tc main_v8875) = hI (aX V0) (aA V0) (aB V0) 443 := by
  refine ((step443_val (val443 V0)).1).trans ?_
  rw [val443_main_arg0 V0, val443_main_v3 V0, val443_main_arg2 V0, val443_h V0]
  exact (hI_at (aX V0) (aA V0) (aB V0) 442 443 (by decide) rfl).symm
theorem val444_y (V0 : Valuation τ sig (Elt Ideal)) : val444 V0 (Proc.devRef .tc main_v8883) = yJ (aX V0) (aA V0) (aB V0) (aC V0) 444 := by
  refine ((step443_val (val443 V0)).2).trans ?_
  rw [val443_main_arg0 V0, val443_main_v3 V0, val443_main_arg2 V0, val443_main_arg3 V0, val443_h V0, val443_y V0]
  rw [← hI_at (aX V0) (aA V0) (aB V0) 442 443 (by decide) rfl]
  exact (yJ_at (aX V0) (aA V0) (aB V0) (aC V0) 443 444 (by decide) rfl).symm
/-- The contents after step 444. -/
def val445 (V0 : Valuation τ sig (Elt Ideal)) : Valuation τ sig (Elt Ideal) := after (stepOps444 (F := Ideal)) (val444 V0)
theorem val445_main_arg0 (V0 : Valuation τ sig (Elt Ideal)) : val445 V0 (Proc.devRef .tc main_arg0) = aX V0 :=
  (after_keep _ 10 stepOps444_ok main_arg0 (by decide +kernel) (val444 V0)).trans (val444_main_arg0 V0)
theorem val445_main_arg1 (V0 : Valuation τ sig (Elt Ideal)) : val445 V0 (Proc.devRef .tc main_arg1) = aA V0 :=
  (after_keep _ 10 stepOps444_ok main_arg1 (by decide +kernel) (val444 V0)).trans (val444_main_arg1 V0)
theorem val445_main_arg2 (V0 : Valuation τ sig (Elt Ideal)) : val445 V0 (Proc.devRef .tc main_arg2) = aB V0 :=
  (after_keep _ 10 stepOps444_ok main_arg2 (by decide +kernel) (val444 V0)).trans (val444_main_arg2 V0)
theorem val445_main_arg3 (V0 : Valuation τ sig (Elt Ideal)) : val445 V0 (Proc.devRef .tc main_arg3) = aC V0 :=
  (after_keep _ 10 stepOps444_ok main_arg3 (by decide +kernel) (val444 V0)).trans (val444_main_arg3 V0)
theorem val445_main_v3 (V0 : Valuation τ sig (Elt Ideal)) : val445 V0 (Proc.devRef .tc main_v3) = decay (aA V0) :=
  (after_keep _ 10 stepOps444_ok main_v3 (by decide +kernel) (val444 V0)).trans (val444_main_v3 V0)
theorem val445_h (V0 : Valuation τ sig (Elt Ideal)) : val445 V0 (Proc.devRef .tc main_v8895) = hI (aX V0) (aA V0) (aB V0) 444 := by
  refine ((step444_val (val444 V0)).1).trans ?_
  rw [val444_main_arg0 V0, val444_main_v3 V0, val444_main_arg2 V0, val444_h V0]
  exact (hI_at (aX V0) (aA V0) (aB V0) 443 444 (by decide) rfl).symm
theorem val445_y (V0 : Valuation τ sig (Elt Ideal)) : val445 V0 (Proc.devRef .tc main_v8903) = yJ (aX V0) (aA V0) (aB V0) (aC V0) 445 := by
  refine ((step444_val (val444 V0)).2).trans ?_
  rw [val444_main_arg0 V0, val444_main_v3 V0, val444_main_arg2 V0, val444_main_arg3 V0, val444_h V0, val444_y V0]
  rw [← hI_at (aX V0) (aA V0) (aB V0) 443 444 (by decide) rfl]
  exact (yJ_at (aX V0) (aA V0) (aB V0) (aC V0) 444 445 (by decide) rfl).symm
/-- The contents after step 445. -/
def val446 (V0 : Valuation τ sig (Elt Ideal)) : Valuation τ sig (Elt Ideal) := after (stepOps445 (F := Ideal)) (val445 V0)
theorem val446_main_arg0 (V0 : Valuation τ sig (Elt Ideal)) : val446 V0 (Proc.devRef .tc main_arg0) = aX V0 :=
  (after_keep _ 10 stepOps445_ok main_arg0 (by decide +kernel) (val445 V0)).trans (val445_main_arg0 V0)
theorem val446_main_arg1 (V0 : Valuation τ sig (Elt Ideal)) : val446 V0 (Proc.devRef .tc main_arg1) = aA V0 :=
  (after_keep _ 10 stepOps445_ok main_arg1 (by decide +kernel) (val445 V0)).trans (val445_main_arg1 V0)
theorem val446_main_arg2 (V0 : Valuation τ sig (Elt Ideal)) : val446 V0 (Proc.devRef .tc main_arg2) = aB V0 :=
  (after_keep _ 10 stepOps445_ok main_arg2 (by decide +kernel) (val445 V0)).trans (val445_main_arg2 V0)
theorem val446_main_arg3 (V0 : Valuation τ sig (Elt Ideal)) : val446 V0 (Proc.devRef .tc main_arg3) = aC V0 :=
  (after_keep _ 10 stepOps445_ok main_arg3 (by decide +kernel) (val445 V0)).trans (val445_main_arg3 V0)
theorem val446_main_v3 (V0 : Valuation τ sig (Elt Ideal)) : val446 V0 (Proc.devRef .tc main_v3) = decay (aA V0) :=
  (after_keep _ 10 stepOps445_ok main_v3 (by decide +kernel) (val445 V0)).trans (val445_main_v3 V0)
theorem val446_h (V0 : Valuation τ sig (Elt Ideal)) : val446 V0 (Proc.devRef .tc main_v8915) = hI (aX V0) (aA V0) (aB V0) 445 := by
  refine ((step445_val (val445 V0)).1).trans ?_
  rw [val445_main_arg0 V0, val445_main_v3 V0, val445_main_arg2 V0, val445_h V0]
  exact (hI_at (aX V0) (aA V0) (aB V0) 444 445 (by decide) rfl).symm
theorem val446_y (V0 : Valuation τ sig (Elt Ideal)) : val446 V0 (Proc.devRef .tc main_v8923) = yJ (aX V0) (aA V0) (aB V0) (aC V0) 446 := by
  refine ((step445_val (val445 V0)).2).trans ?_
  rw [val445_main_arg0 V0, val445_main_v3 V0, val445_main_arg2 V0, val445_main_arg3 V0, val445_h V0, val445_y V0]
  rw [← hI_at (aX V0) (aA V0) (aB V0) 444 445 (by decide) rfl]
  exact (yJ_at (aX V0) (aA V0) (aB V0) (aC V0) 445 446 (by decide) rfl).symm
/-- The contents after step 446. -/
def val447 (V0 : Valuation τ sig (Elt Ideal)) : Valuation τ sig (Elt Ideal) := after (stepOps446 (F := Ideal)) (val446 V0)
theorem val447_main_arg0 (V0 : Valuation τ sig (Elt Ideal)) : val447 V0 (Proc.devRef .tc main_arg0) = aX V0 :=
  (after_keep _ 10 stepOps446_ok main_arg0 (by decide +kernel) (val446 V0)).trans (val446_main_arg0 V0)
theorem val447_main_arg1 (V0 : Valuation τ sig (Elt Ideal)) : val447 V0 (Proc.devRef .tc main_arg1) = aA V0 :=
  (after_keep _ 10 stepOps446_ok main_arg1 (by decide +kernel) (val446 V0)).trans (val446_main_arg1 V0)
theorem val447_main_arg2 (V0 : Valuation τ sig (Elt Ideal)) : val447 V0 (Proc.devRef .tc main_arg2) = aB V0 :=
  (after_keep _ 10 stepOps446_ok main_arg2 (by decide +kernel) (val446 V0)).trans (val446_main_arg2 V0)
theorem val447_main_arg3 (V0 : Valuation τ sig (Elt Ideal)) : val447 V0 (Proc.devRef .tc main_arg3) = aC V0 :=
  (after_keep _ 10 stepOps446_ok main_arg3 (by decide +kernel) (val446 V0)).trans (val446_main_arg3 V0)
theorem val447_main_v3 (V0 : Valuation τ sig (Elt Ideal)) : val447 V0 (Proc.devRef .tc main_v3) = decay (aA V0) :=
  (after_keep _ 10 stepOps446_ok main_v3 (by decide +kernel) (val446 V0)).trans (val446_main_v3 V0)
theorem val447_h (V0 : Valuation τ sig (Elt Ideal)) : val447 V0 (Proc.devRef .tc main_v8935) = hI (aX V0) (aA V0) (aB V0) 446 := by
  refine ((step446_val (val446 V0)).1).trans ?_
  rw [val446_main_arg0 V0, val446_main_v3 V0, val446_main_arg2 V0, val446_h V0]
  exact (hI_at (aX V0) (aA V0) (aB V0) 445 446 (by decide) rfl).symm
theorem val447_y (V0 : Valuation τ sig (Elt Ideal)) : val447 V0 (Proc.devRef .tc main_v8943) = yJ (aX V0) (aA V0) (aB V0) (aC V0) 447 := by
  refine ((step446_val (val446 V0)).2).trans ?_
  rw [val446_main_arg0 V0, val446_main_v3 V0, val446_main_arg2 V0, val446_main_arg3 V0, val446_h V0, val446_y V0]
  rw [← hI_at (aX V0) (aA V0) (aB V0) 445 446 (by decide) rfl]
  exact (yJ_at (aX V0) (aA V0) (aB V0) (aC V0) 446 447 (by decide) rfl).symm
/-- The contents after step 447. -/
def val448 (V0 : Valuation τ sig (Elt Ideal)) : Valuation τ sig (Elt Ideal) := after (stepOps447 (F := Ideal)) (val447 V0)
theorem val448_main_arg0 (V0 : Valuation τ sig (Elt Ideal)) : val448 V0 (Proc.devRef .tc main_arg0) = aX V0 :=
  (after_keep _ 10 stepOps447_ok main_arg0 (by decide +kernel) (val447 V0)).trans (val447_main_arg0 V0)
theorem val448_main_arg1 (V0 : Valuation τ sig (Elt Ideal)) : val448 V0 (Proc.devRef .tc main_arg1) = aA V0 :=
  (after_keep _ 10 stepOps447_ok main_arg1 (by decide +kernel) (val447 V0)).trans (val447_main_arg1 V0)
theorem val448_main_arg2 (V0 : Valuation τ sig (Elt Ideal)) : val448 V0 (Proc.devRef .tc main_arg2) = aB V0 :=
  (after_keep _ 10 stepOps447_ok main_arg2 (by decide +kernel) (val447 V0)).trans (val447_main_arg2 V0)
theorem val448_main_arg3 (V0 : Valuation τ sig (Elt Ideal)) : val448 V0 (Proc.devRef .tc main_arg3) = aC V0 :=
  (after_keep _ 10 stepOps447_ok main_arg3 (by decide +kernel) (val447 V0)).trans (val447_main_arg3 V0)
theorem val448_main_v3 (V0 : Valuation τ sig (Elt Ideal)) : val448 V0 (Proc.devRef .tc main_v3) = decay (aA V0) :=
  (after_keep _ 10 stepOps447_ok main_v3 (by decide +kernel) (val447 V0)).trans (val447_main_v3 V0)
theorem val448_h (V0 : Valuation τ sig (Elt Ideal)) : val448 V0 (Proc.devRef .tc main_v8955) = hI (aX V0) (aA V0) (aB V0) 447 := by
  refine ((step447_val (val447 V0)).1).trans ?_
  rw [val447_main_arg0 V0, val447_main_v3 V0, val447_main_arg2 V0, val447_h V0]
  exact (hI_at (aX V0) (aA V0) (aB V0) 446 447 (by decide) rfl).symm
theorem val448_y (V0 : Valuation τ sig (Elt Ideal)) : val448 V0 (Proc.devRef .tc main_v8963) = yJ (aX V0) (aA V0) (aB V0) (aC V0) 448 := by
  refine ((step447_val (val447 V0)).2).trans ?_
  rw [val447_main_arg0 V0, val447_main_v3 V0, val447_main_arg2 V0, val447_main_arg3 V0, val447_h V0, val447_y V0]
  rw [← hI_at (aX V0) (aA V0) (aB V0) 446 447 (by decide) rfl]
  exact (yJ_at (aX V0) (aA V0) (aB V0) (aC V0) 447 448 (by decide) rfl).symm
/-- The contents after step 448. -/
def val449 (V0 : Valuation τ sig (Elt Ideal)) : Valuation τ sig (Elt Ideal) := after (stepOps448 (F := Ideal)) (val448 V0)
theorem val449_main_arg0 (V0 : Valuation τ sig (Elt Ideal)) : val449 V0 (Proc.devRef .tc main_arg0) = aX V0 :=
  (after_keep _ 10 stepOps448_ok main_arg0 (by decide +kernel) (val448 V0)).trans (val448_main_arg0 V0)
theorem val449_main_arg1 (V0 : Valuation τ sig (Elt Ideal)) : val449 V0 (Proc.devRef .tc main_arg1) = aA V0 :=
  (after_keep _ 10 stepOps448_ok main_arg1 (by decide +kernel) (val448 V0)).trans (val448_main_arg1 V0)
theorem val449_main_arg2 (V0 : Valuation τ sig (Elt Ideal)) : val449 V0 (Proc.devRef .tc main_arg2) = aB V0 :=
  (after_keep _ 10 stepOps448_ok main_arg2 (by decide +kernel) (val448 V0)).trans (val448_main_arg2 V0)
theorem val449_main_arg3 (V0 : Valuation τ sig (Elt Ideal)) : val449 V0 (Proc.devRef .tc main_arg3) = aC V0 :=
  (after_keep _ 10 stepOps448_ok main_arg3 (by decide +kernel) (val448 V0)).trans (val448_main_arg3 V0)
theorem val449_main_v3 (V0 : Valuation τ sig (Elt Ideal)) : val449 V0 (Proc.devRef .tc main_v3) = decay (aA V0) :=
  (after_keep _ 10 stepOps448_ok main_v3 (by decide +kernel) (val448 V0)).trans (val448_main_v3 V0)
theorem val449_h (V0 : Valuation τ sig (Elt Ideal)) : val449 V0 (Proc.devRef .tc main_v8975) = hI (aX V0) (aA V0) (aB V0) 448 := by
  refine ((step448_val (val448 V0)).1).trans ?_
  rw [val448_main_arg0 V0, val448_main_v3 V0, val448_main_arg2 V0, val448_h V0]
  exact (hI_at (aX V0) (aA V0) (aB V0) 447 448 (by decide) rfl).symm
theorem val449_y (V0 : Valuation τ sig (Elt Ideal)) : val449 V0 (Proc.devRef .tc main_v8983) = yJ (aX V0) (aA V0) (aB V0) (aC V0) 449 := by
  refine ((step448_val (val448 V0)).2).trans ?_
  rw [val448_main_arg0 V0, val448_main_v3 V0, val448_main_arg2 V0, val448_main_arg3 V0, val448_h V0, val448_y V0]
  rw [← hI_at (aX V0) (aA V0) (aB V0) 447 448 (by decide) rfl]
  exact (yJ_at (aX V0) (aA V0) (aB V0) (aC V0) 448 449 (by decide) rfl).symm
/-- The contents after step 449. -/
def val450 (V0 : Valuation τ sig (Elt Ideal)) : Valuation τ sig (Elt Ideal) := after (stepOps449 (F := Ideal)) (val449 V0)
theorem val450_main_arg0 (V0 : Valuation τ sig (Elt Ideal)) : val450 V0 (Proc.devRef .tc main_arg0) = aX V0 :=
  (after_keep _ 10 stepOps449_ok main_arg0 (by decide +kernel) (val449 V0)).trans (val449_main_arg0 V0)
theorem val450_main_arg1 (V0 : Valuation τ sig (Elt Ideal)) : val450 V0 (Proc.devRef .tc main_arg1) = aA V0 :=
  (after_keep _ 10 stepOps449_ok main_arg1 (by decide +kernel) (val449 V0)).trans (val449_main_arg1 V0)
theorem val450_main_arg2 (V0 : Valuation τ sig (Elt Ideal)) : val450 V0 (Proc.devRef .tc main_arg2) = aB V0 :=
  (after_keep _ 10 stepOps449_ok main_arg2 (by decide +kernel) (val449 V0)).trans (val449_main_arg2 V0)
theorem val450_main_arg3 (V0 : Valuation τ sig (Elt Ideal)) : val450 V0 (Proc.devRef .tc main_arg3) = aC V0 :=
  (after_keep _ 10 stepOps449_ok main_arg3 (by decide +kernel) (val449 V0)).trans (val449_main_arg3 V0)
theorem val450_main_v3 (V0 : Valuation τ sig (Elt Ideal)) : val450 V0 (Proc.devRef .tc main_v3) = decay (aA V0) :=
  (after_keep _ 10 stepOps449_ok main_v3 (by decide +kernel) (val449 V0)).trans (val449_main_v3 V0)
theorem val450_h (V0 : Valuation τ sig (Elt Ideal)) : val450 V0 (Proc.devRef .tc main_v8995) = hI (aX V0) (aA V0) (aB V0) 449 := by
  refine ((step449_val (val449 V0)).1).trans ?_
  rw [val449_main_arg0 V0, val449_main_v3 V0, val449_main_arg2 V0, val449_h V0]
  exact (hI_at (aX V0) (aA V0) (aB V0) 448 449 (by decide) rfl).symm
theorem val450_y (V0 : Valuation τ sig (Elt Ideal)) : val450 V0 (Proc.devRef .tc main_v9003) = yJ (aX V0) (aA V0) (aB V0) (aC V0) 450 := by
  refine ((step449_val (val449 V0)).2).trans ?_
  rw [val449_main_arg0 V0, val449_main_v3 V0, val449_main_arg2 V0, val449_main_arg3 V0, val449_h V0, val449_y V0]
  rw [← hI_at (aX V0) (aA V0) (aB V0) 448 449 (by decide) rfl]
  exact (yJ_at (aX V0) (aA V0) (aB V0) (aC V0) 449 450 (by decide) rfl).symm
/-- The contents after step 450. -/
def val451 (V0 : Valuation τ sig (Elt Ideal)) : Valuation τ sig (Elt Ideal) := after (stepOps450 (F := Ideal)) (val450 V0)
theorem val451_main_arg0 (V0 : Valuation τ sig (Elt Ideal)) : val451 V0 (Proc.devRef .tc main_arg0) = aX V0 :=
  (after_keep _ 10 stepOps450_ok main_arg0 (by decide +kernel) (val450 V0)).trans (val450_main_arg0 V0)
theorem val451_main_arg1 (V0 : Valuation τ sig (Elt Ideal)) : val451 V0 (Proc.devRef .tc main_arg1) = aA V0 :=
  (after_keep _ 10 stepOps450_ok main_arg1 (by decide +kernel) (val450 V0)).trans (val450_main_arg1 V0)
theorem val451_main_arg2 (V0 : Valuation τ sig (Elt Ideal)) : val451 V0 (Proc.devRef .tc main_arg2) = aB V0 :=
  (after_keep _ 10 stepOps450_ok main_arg2 (by decide +kernel) (val450 V0)).trans (val450_main_arg2 V0)
theorem val451_main_arg3 (V0 : Valuation τ sig (Elt Ideal)) : val451 V0 (Proc.devRef .tc main_arg3) = aC V0 :=
  (after_keep _ 10 stepOps450_ok main_arg3 (by decide +kernel) (val450 V0)).trans (val450_main_arg3 V0)
theorem val451_main_v3 (V0 : Valuation τ sig (Elt Ideal)) : val451 V0 (Proc.devRef .tc main_v3) = decay (aA V0) :=
  (after_keep _ 10 stepOps450_ok main_v3 (by decide +kernel) (val450 V0)).trans (val450_main_v3 V0)
theorem val451_h (V0 : Valuation τ sig (Elt Ideal)) : val451 V0 (Proc.devRef .tc main_v9015) = hI (aX V0) (aA V0) (aB V0) 450 := by
  refine ((step450_val (val450 V0)).1).trans ?_
  rw [val450_main_arg0 V0, val450_main_v3 V0, val450_main_arg2 V0, val450_h V0]
  exact (hI_at (aX V0) (aA V0) (aB V0) 449 450 (by decide) rfl).symm
theorem val451_y (V0 : Valuation τ sig (Elt Ideal)) : val451 V0 (Proc.devRef .tc main_v9023) = yJ (aX V0) (aA V0) (aB V0) (aC V0) 451 := by
  refine ((step450_val (val450 V0)).2).trans ?_
  rw [val450_main_arg0 V0, val450_main_v3 V0, val450_main_arg2 V0, val450_main_arg3 V0, val450_h V0, val450_y V0]
  rw [← hI_at (aX V0) (aA V0) (aB V0) 449 450 (by decide) rfl]
  exact (yJ_at (aX V0) (aA V0) (aB V0) (aC V0) 450 451 (by decide) rfl).symm
/-- The contents after step 451. -/
def val452 (V0 : Valuation τ sig (Elt Ideal)) : Valuation τ sig (Elt Ideal) := after (stepOps451 (F := Ideal)) (val451 V0)
theorem val452_main_arg0 (V0 : Valuation τ sig (Elt Ideal)) : val452 V0 (Proc.devRef .tc main_arg0) = aX V0 :=
  (after_keep _ 10 stepOps451_ok main_arg0 (by decide +kernel) (val451 V0)).trans (val451_main_arg0 V0)
theorem val452_main_arg1 (V0 : Valuation τ sig (Elt Ideal)) : val452 V0 (Proc.devRef .tc main_arg1) = aA V0 :=
  (after_keep _ 10 stepOps451_ok main_arg1 (by decide +kernel) (val451 V0)).trans (val451_main_arg1 V0)
theorem val452_main_arg2 (V0 : Valuation τ sig (Elt Ideal)) : val452 V0 (Proc.devRef .tc main_arg2) = aB V0 :=
  (after_keep _ 10 stepOps451_ok main_arg2 (by decide +kernel) (val451 V0)).trans (val451_main_arg2 V0)
theorem val452_main_arg3 (V0 : Valuation τ sig (Elt Ideal)) : val452 V0 (Proc.devRef .tc main_arg3) = aC V0 :=
  (after_keep _ 10 stepOps451_ok main_arg3 (by decide +kernel) (val451 V0)).trans (val451_main_arg3 V0)
theorem val452_main_v3 (V0 : Valuation τ sig (Elt Ideal)) : val452 V0 (Proc.devRef .tc main_v3) = decay (aA V0) :=
  (after_keep _ 10 stepOps451_ok main_v3 (by decide +kernel) (val451 V0)).trans (val451_main_v3 V0)
theorem val452_h (V0 : Valuation τ sig (Elt Ideal)) : val452 V0 (Proc.devRef .tc main_v9035) = hI (aX V0) (aA V0) (aB V0) 451 := by
  refine ((step451_val (val451 V0)).1).trans ?_
  rw [val451_main_arg0 V0, val451_main_v3 V0, val451_main_arg2 V0, val451_h V0]
  exact (hI_at (aX V0) (aA V0) (aB V0) 450 451 (by decide) rfl).symm
theorem val452_y (V0 : Valuation τ sig (Elt Ideal)) : val452 V0 (Proc.devRef .tc main_v9043) = yJ (aX V0) (aA V0) (aB V0) (aC V0) 452 := by
  refine ((step451_val (val451 V0)).2).trans ?_
  rw [val451_main_arg0 V0, val451_main_v3 V0, val451_main_arg2 V0, val451_main_arg3 V0, val451_h V0, val451_y V0]
  rw [← hI_at (aX V0) (aA V0) (aB V0) 450 451 (by decide) rfl]
  exact (yJ_at (aX V0) (aA V0) (aB V0) (aC V0) 451 452 (by decide) rfl).symm
/-- The contents after step 452. -/
def val453 (V0 : Valuation τ sig (Elt Ideal)) : Valuation τ sig (Elt Ideal) := after (stepOps452 (F := Ideal)) (val452 V0)
theorem val453_main_arg0 (V0 : Valuation τ sig (Elt Ideal)) : val453 V0 (Proc.devRef .tc main_arg0) = aX V0 :=
  (after_keep _ 10 stepOps452_ok main_arg0 (by decide +kernel) (val452 V0)).trans (val452_main_arg0 V0)
theorem val453_main_arg1 (V0 : Valuation τ sig (Elt Ideal)) : val453 V0 (Proc.devRef .tc main_arg1) = aA V0 :=
  (after_keep _ 10 stepOps452_ok main_arg1 (by decide +kernel) (val452 V0)).trans (val452_main_arg1 V0)
theorem val453_main_arg2 (V0 : Valuation τ sig (Elt Ideal)) : val453 V0 (Proc.devRef .tc main_arg2) = aB V0 :=
  (after_keep _ 10 stepOps452_ok main_arg2 (by decide +kernel) (val452 V0)).trans (val452_main_arg2 V0)
theorem val453_main_arg3 (V0 : Valuation τ sig (Elt Ideal)) : val453 V0 (Proc.devRef .tc main_arg3) = aC V0 :=
  (after_keep _ 10 stepOps452_ok main_arg3 (by decide +kernel) (val452 V0)).trans (val452_main_arg3 V0)
theorem val453_main_v3 (V0 : Valuation τ sig (Elt Ideal)) : val453 V0 (Proc.devRef .tc main_v3) = decay (aA V0) :=
  (after_keep _ 10 stepOps452_ok main_v3 (by decide +kernel) (val452 V0)).trans (val452_main_v3 V0)
theorem val453_h (V0 : Valuation τ sig (Elt Ideal)) : val453 V0 (Proc.devRef .tc main_v9055) = hI (aX V0) (aA V0) (aB V0) 452 := by
  refine ((step452_val (val452 V0)).1).trans ?_
  rw [val452_main_arg0 V0, val452_main_v3 V0, val452_main_arg2 V0, val452_h V0]
  exact (hI_at (aX V0) (aA V0) (aB V0) 451 452 (by decide) rfl).symm
theorem val453_y (V0 : Valuation τ sig (Elt Ideal)) : val453 V0 (Proc.devRef .tc main_v9063) = yJ (aX V0) (aA V0) (aB V0) (aC V0) 453 := by
  refine ((step452_val (val452 V0)).2).trans ?_
  rw [val452_main_arg0 V0, val452_main_v3 V0, val452_main_arg2 V0, val452_main_arg3 V0, val452_h V0, val452_y V0]
  rw [← hI_at (aX V0) (aA V0) (aB V0) 451 452 (by decide) rfl]
  exact (yJ_at (aX V0) (aA V0) (aB V0) (aC V0) 452 453 (by decide) rfl).symm
/-- The contents after step 453. -/
def val454 (V0 : Valuation τ sig (Elt Ideal)) : Valuation τ sig (Elt Ideal) := after (stepOps453 (F := Ideal)) (val453 V0)
theorem val454_main_arg0 (V0 : Valuation τ sig (Elt Ideal)) : val454 V0 (Proc.devRef .tc main_arg0) = aX V0 :=
  (after_keep _ 10 stepOps453_ok main_arg0 (by decide +kernel) (val453 V0)).trans (val453_main_arg0 V0)
theorem val454_main_arg1 (V0 : Valuation τ sig (Elt Ideal)) : val454 V0 (Proc.devRef .tc main_arg1) = aA V0 :=
  (after_keep _ 10 stepOps453_ok main_arg1 (by decide +kernel) (val453 V0)).trans (val453_main_arg1 V0)
theorem val454_main_arg2 (V0 : Valuation τ sig (Elt Ideal)) : val454 V0 (Proc.devRef .tc main_arg2) = aB V0 :=
  (after_keep _ 10 stepOps453_ok main_arg2 (by decide +kernel) (val453 V0)).trans (val453_main_arg2 V0)
theorem val454_main_arg3 (V0 : Valuation τ sig (Elt Ideal)) : val454 V0 (Proc.devRef .tc main_arg3) = aC V0 :=
  (after_keep _ 10 stepOps453_ok main_arg3 (by decide +kernel) (val453 V0)).trans (val453_main_arg3 V0)
theorem val454_main_v3 (V0 : Valuation τ sig (Elt Ideal)) : val454 V0 (Proc.devRef .tc main_v3) = decay (aA V0) :=
  (after_keep _ 10 stepOps453_ok main_v3 (by decide +kernel) (val453 V0)).trans (val453_main_v3 V0)
theorem val454_h (V0 : Valuation τ sig (Elt Ideal)) : val454 V0 (Proc.devRef .tc main_v9075) = hI (aX V0) (aA V0) (aB V0) 453 := by
  refine ((step453_val (val453 V0)).1).trans ?_
  rw [val453_main_arg0 V0, val453_main_v3 V0, val453_main_arg2 V0, val453_h V0]
  exact (hI_at (aX V0) (aA V0) (aB V0) 452 453 (by decide) rfl).symm
theorem val454_y (V0 : Valuation τ sig (Elt Ideal)) : val454 V0 (Proc.devRef .tc main_v9083) = yJ (aX V0) (aA V0) (aB V0) (aC V0) 454 := by
  refine ((step453_val (val453 V0)).2).trans ?_
  rw [val453_main_arg0 V0, val453_main_v3 V0, val453_main_arg2 V0, val453_main_arg3 V0, val453_h V0, val453_y V0]
  rw [← hI_at (aX V0) (aA V0) (aB V0) 452 453 (by decide) rfl]
  exact (yJ_at (aX V0) (aA V0) (aB V0) (aC V0) 453 454 (by decide) rfl).symm
/-- The contents after step 454. -/
def val455 (V0 : Valuation τ sig (Elt Ideal)) : Valuation τ sig (Elt Ideal) := after (stepOps454 (F := Ideal)) (val454 V0)
theorem val455_main_arg0 (V0 : Valuation τ sig (Elt Ideal)) : val455 V0 (Proc.devRef .tc main_arg0) = aX V0 :=
  (after_keep _ 10 stepOps454_ok main_arg0 (by decide +kernel) (val454 V0)).trans (val454_main_arg0 V0)
theorem val455_main_arg1 (V0 : Valuation τ sig (Elt Ideal)) : val455 V0 (Proc.devRef .tc main_arg1) = aA V0 :=
  (after_keep _ 10 stepOps454_ok main_arg1 (by decide +kernel) (val454 V0)).trans (val454_main_arg1 V0)
theorem val455_main_arg2 (V0 : Valuation τ sig (Elt Ideal)) : val455 V0 (Proc.devRef .tc main_arg2) = aB V0 :=
  (after_keep _ 10 stepOps454_ok main_arg2 (by decide +kernel) (val454 V0)).trans (val454_main_arg2 V0)
theorem val455_main_arg3 (V0 : Valuation τ sig (Elt Ideal)) : val455 V0 (Proc.devRef .tc main_arg3) = aC V0 :=
  (after_keep _ 10 stepOps454_ok main_arg3 (by decide +kernel) (val454 V0)).trans (val454_main_arg3 V0)
theorem val455_main_v3 (V0 : Valuation τ sig (Elt Ideal)) : val455 V0 (Proc.devRef .tc main_v3) = decay (aA V0) :=
  (after_keep _ 10 stepOps454_ok main_v3 (by decide +kernel) (val454 V0)).trans (val454_main_v3 V0)
theorem val455_h (V0 : Valuation τ sig (Elt Ideal)) : val455 V0 (Proc.devRef .tc main_v9095) = hI (aX V0) (aA V0) (aB V0) 454 := by
  refine ((step454_val (val454 V0)).1).trans ?_
  rw [val454_main_arg0 V0, val454_main_v3 V0, val454_main_arg2 V0, val454_h V0]
  exact (hI_at (aX V0) (aA V0) (aB V0) 453 454 (by decide) rfl).symm
theorem val455_y (V0 : Valuation τ sig (Elt Ideal)) : val455 V0 (Proc.devRef .tc main_v9103) = yJ (aX V0) (aA V0) (aB V0) (aC V0) 455 := by
  refine ((step454_val (val454 V0)).2).trans ?_
  rw [val454_main_arg0 V0, val454_main_v3 V0, val454_main_arg2 V0, val454_main_arg3 V0, val454_h V0, val454_y V0]
  rw [← hI_at (aX V0) (aA V0) (aB V0) 453 454 (by decide) rfl]
  exact (yJ_at (aX V0) (aA V0) (aB V0) (aC V0) 454 455 (by decide) rfl).symm
/-- The contents after step 455. -/
def val456 (V0 : Valuation τ sig (Elt Ideal)) : Valuation τ sig (Elt Ideal) := after (stepOps455 (F := Ideal)) (val455 V0)
theorem val456_main_arg0 (V0 : Valuation τ sig (Elt Ideal)) : val456 V0 (Proc.devRef .tc main_arg0) = aX V0 :=
  (after_keep _ 10 stepOps455_ok main_arg0 (by decide +kernel) (val455 V0)).trans (val455_main_arg0 V0)
theorem val456_main_arg1 (V0 : Valuation τ sig (Elt Ideal)) : val456 V0 (Proc.devRef .tc main_arg1) = aA V0 :=
  (after_keep _ 10 stepOps455_ok main_arg1 (by decide +kernel) (val455 V0)).trans (val455_main_arg1 V0)
theorem val456_main_arg2 (V0 : Valuation τ sig (Elt Ideal)) : val456 V0 (Proc.devRef .tc main_arg2) = aB V0 :=
  (after_keep _ 10 stepOps455_ok main_arg2 (by decide +kernel) (val455 V0)).trans (val455_main_arg2 V0)
theorem val456_main_arg3 (V0 : Valuation τ sig (Elt Ideal)) : val456 V0 (Proc.devRef .tc main_arg3) = aC V0 :=
  (after_keep _ 10 stepOps455_ok main_arg3 (by decide +kernel) (val455 V0)).trans (val455_main_arg3 V0)
theorem val456_main_v3 (V0 : Valuation τ sig (Elt Ideal)) : val456 V0 (Proc.devRef .tc main_v3) = decay (aA V0) :=
  (after_keep _ 10 stepOps455_ok main_v3 (by decide +kernel) (val455 V0)).trans (val455_main_v3 V0)
theorem val456_h (V0 : Valuation τ sig (Elt Ideal)) : val456 V0 (Proc.devRef .tc main_v9115) = hI (aX V0) (aA V0) (aB V0) 455 := by
  refine ((step455_val (val455 V0)).1).trans ?_
  rw [val455_main_arg0 V0, val455_main_v3 V0, val455_main_arg2 V0, val455_h V0]
  exact (hI_at (aX V0) (aA V0) (aB V0) 454 455 (by decide) rfl).symm
theorem val456_y (V0 : Valuation τ sig (Elt Ideal)) : val456 V0 (Proc.devRef .tc main_v9123) = yJ (aX V0) (aA V0) (aB V0) (aC V0) 456 := by
  refine ((step455_val (val455 V0)).2).trans ?_
  rw [val455_main_arg0 V0, val455_main_v3 V0, val455_main_arg2 V0, val455_main_arg3 V0, val455_h V0, val455_y V0]
  rw [← hI_at (aX V0) (aA V0) (aB V0) 454 455 (by decide) rfl]
  exact (yJ_at (aX V0) (aA V0) (aB V0) (aC V0) 455 456 (by decide) rfl).symm
/-- The contents after step 456. -/
def val457 (V0 : Valuation τ sig (Elt Ideal)) : Valuation τ sig (Elt Ideal) := after (stepOps456 (F := Ideal)) (val456 V0)
theorem val457_main_arg0 (V0 : Valuation τ sig (Elt Ideal)) : val457 V0 (Proc.devRef .tc main_arg0) = aX V0 :=
  (after_keep _ 10 stepOps456_ok main_arg0 (by decide +kernel) (val456 V0)).trans (val456_main_arg0 V0)
theorem val457_main_arg1 (V0 : Valuation τ sig (Elt Ideal)) : val457 V0 (Proc.devRef .tc main_arg1) = aA V0 :=
  (after_keep _ 10 stepOps456_ok main_arg1 (by decide +kernel) (val456 V0)).trans (val456_main_arg1 V0)
theorem val457_main_arg2 (V0 : Valuation τ sig (Elt Ideal)) : val457 V0 (Proc.devRef .tc main_arg2) = aB V0 :=
  (after_keep _ 10 stepOps456_ok main_arg2 (by decide +kernel) (val456 V0)).trans (val456_main_arg2 V0)
theorem val457_main_arg3 (V0 : Valuation τ sig (Elt Ideal)) : val457 V0 (Proc.devRef .tc main_arg3) = aC V0 :=
  (after_keep _ 10 stepOps456_ok main_arg3 (by decide +kernel) (val456 V0)).trans (val456_main_arg3 V0)
theorem val457_main_v3 (V0 : Valuation τ sig (Elt Ideal)) : val457 V0 (Proc.devRef .tc main_v3) = decay (aA V0) :=
  (after_keep _ 10 stepOps456_ok main_v3 (by decide +kernel) (val456 V0)).trans (val456_main_v3 V0)
theorem val457_h (V0 : Valuation τ sig (Elt Ideal)) : val457 V0 (Proc.devRef .tc main_v9135) = hI (aX V0) (aA V0) (aB V0) 456 := by
  refine ((step456_val (val456 V0)).1).trans ?_
  rw [val456_main_arg0 V0, val456_main_v3 V0, val456_main_arg2 V0, val456_h V0]
  exact (hI_at (aX V0) (aA V0) (aB V0) 455 456 (by decide) rfl).symm
theorem val457_y (V0 : Valuation τ sig (Elt Ideal)) : val457 V0 (Proc.devRef .tc main_v9143) = yJ (aX V0) (aA V0) (aB V0) (aC V0) 457 := by
  refine ((step456_val (val456 V0)).2).trans ?_
  rw [val456_main_arg0 V0, val456_main_v3 V0, val456_main_arg2 V0, val456_main_arg3 V0, val456_h V0, val456_y V0]
  rw [← hI_at (aX V0) (aA V0) (aB V0) 455 456 (by decide) rfl]
  exact (yJ_at (aX V0) (aA V0) (aB V0) (aC V0) 456 457 (by decide) rfl).symm
/-- The contents after step 457. -/
def val458 (V0 : Valuation τ sig (Elt Ideal)) : Valuation τ sig (Elt Ideal) := after (stepOps457 (F := Ideal)) (val457 V0)
theorem val458_main_arg0 (V0 : Valuation τ sig (Elt Ideal)) : val458 V0 (Proc.devRef .tc main_arg0) = aX V0 :=
  (after_keep _ 10 stepOps457_ok main_arg0 (by decide +kernel) (val457 V0)).trans (val457_main_arg0 V0)
theorem val458_main_arg1 (V0 : Valuation τ sig (Elt Ideal)) : val458 V0 (Proc.devRef .tc main_arg1) = aA V0 :=
  (after_keep _ 10 stepOps457_ok main_arg1 (by decide +kernel) (val457 V0)).trans (val457_main_arg1 V0)
theorem val458_main_arg2 (V0 : Valuation τ sig (Elt Ideal)) : val458 V0 (Proc.devRef .tc main_arg2) = aB V0 :=
  (after_keep _ 10 stepOps457_ok main_arg2 (by decide +kernel) (val457 V0)).trans (val457_main_arg2 V0)
theorem val458_main_arg3 (V0 : Valuation τ sig (Elt Ideal)) : val458 V0 (Proc.devRef .tc main_arg3) = aC V0 :=
  (after_keep _ 10 stepOps457_ok main_arg3 (by decide +kernel) (val457 V0)).trans (val457_main_arg3 V0)
theorem val458_main_v3 (V0 : Valuation τ sig (Elt Ideal)) : val458 V0 (Proc.devRef .tc main_v3) = decay (aA V0) :=
  (after_keep _ 10 stepOps457_ok main_v3 (by decide +kernel) (val457 V0)).trans (val457_main_v3 V0)
theorem val458_h (V0 : Valuation τ sig (Elt Ideal)) : val458 V0 (Proc.devRef .tc main_v9155) = hI (aX V0) (aA V0) (aB V0) 457 := by
  refine ((step457_val (val457 V0)).1).trans ?_
  rw [val457_main_arg0 V0, val457_main_v3 V0, val457_main_arg2 V0, val457_h V0]
  exact (hI_at (aX V0) (aA V0) (aB V0) 456 457 (by decide) rfl).symm
theorem val458_y (V0 : Valuation τ sig (Elt Ideal)) : val458 V0 (Proc.devRef .tc main_v9163) = yJ (aX V0) (aA V0) (aB V0) (aC V0) 458 := by
  refine ((step457_val (val457 V0)).2).trans ?_
  rw [val457_main_arg0 V0, val457_main_v3 V0, val457_main_arg2 V0, val457_main_arg3 V0, val457_h V0, val457_y V0]
  rw [← hI_at (aX V0) (aA V0) (aB V0) 456 457 (by decide) rfl]
  exact (yJ_at (aX V0) (aA V0) (aB V0) (aC V0) 457 458 (by decide) rfl).symm
/-- The contents after step 458. -/
def val459 (V0 : Valuation τ sig (Elt Ideal)) : Valuation τ sig (Elt Ideal) := after (stepOps458 (F := Ideal)) (val458 V0)
theorem val459_main_arg0 (V0 : Valuation τ sig (Elt Ideal)) : val459 V0 (Proc.devRef .tc main_arg0) = aX V0 :=
  (after_keep _ 10 stepOps458_ok main_arg0 (by decide +kernel) (val458 V0)).trans (val458_main_arg0 V0)
theorem val459_main_arg1 (V0 : Valuation τ sig (Elt Ideal)) : val459 V0 (Proc.devRef .tc main_arg1) = aA V0 :=
  (after_keep _ 10 stepOps458_ok main_arg1 (by decide +kernel) (val458 V0)).trans (val458_main_arg1 V0)
theorem val459_main_arg2 (V0 : Valuation τ sig (Elt Ideal)) : val459 V0 (Proc.devRef .tc main_arg2) = aB V0 :=
  (after_keep _ 10 stepOps458_ok main_arg2 (by decide +kernel) (val458 V0)).trans (val458_main_arg2 V0)
theorem val459_main_arg3 (V0 : Valuation τ sig (Elt Ideal)) : val459 V0 (Proc.devRef .tc main_arg3) = aC V0 :=
  (after_keep _ 10 stepOps458_ok main_arg3 (by decide +kernel) (val458 V0)).trans (val458_main_arg3 V0)
theorem val459_main_v3 (V0 : Valuation τ sig (Elt Ideal)) : val459 V0 (Proc.devRef .tc main_v3) = decay (aA V0) :=
  (after_keep _ 10 stepOps458_ok main_v3 (by decide +kernel) (val458 V0)).trans (val458_main_v3 V0)
theorem val459_h (V0 : Valuation τ sig (Elt Ideal)) : val459 V0 (Proc.devRef .tc main_v9175) = hI (aX V0) (aA V0) (aB V0) 458 := by
  refine ((step458_val (val458 V0)).1).trans ?_
  rw [val458_main_arg0 V0, val458_main_v3 V0, val458_main_arg2 V0, val458_h V0]
  exact (hI_at (aX V0) (aA V0) (aB V0) 457 458 (by decide) rfl).symm
theorem val459_y (V0 : Valuation τ sig (Elt Ideal)) : val459 V0 (Proc.devRef .tc main_v9183) = yJ (aX V0) (aA V0) (aB V0) (aC V0) 459 := by
  refine ((step458_val (val458 V0)).2).trans ?_
  rw [val458_main_arg0 V0, val458_main_v3 V0, val458_main_arg2 V0, val458_main_arg3 V0, val458_h V0, val458_y V0]
  rw [← hI_at (aX V0) (aA V0) (aB V0) 457 458 (by decide) rfl]
  exact (yJ_at (aX V0) (aA V0) (aB V0) (aC V0) 458 459 (by decide) rfl).symm
/-- The contents after step 459. -/
def val460 (V0 : Valuation τ sig (Elt Ideal)) : Valuation τ sig (Elt Ideal) := after (stepOps459 (F := Ideal)) (val459 V0)
theorem val460_main_arg0 (V0 : Valuation τ sig (Elt Ideal)) : val460 V0 (Proc.devRef .tc main_arg0) = aX V0 :=
  (after_keep _ 10 stepOps459_ok main_arg0 (by decide +kernel) (val459 V0)).trans (val459_main_arg0 V0)
theorem val460_main_arg1 (V0 : Valuation τ sig (Elt Ideal)) : val460 V0 (Proc.devRef .tc main_arg1) = aA V0 :=
  (after_keep _ 10 stepOps459_ok main_arg1 (by decide +kernel) (val459 V0)).trans (val459_main_arg1 V0)
theorem val460_main_arg2 (V0 : Valuation τ sig (Elt Ideal)) : val460 V0 (Proc.devRef .tc main_arg2) = aB V0 :=
  (after_keep _ 10 stepOps459_ok main_arg2 (by decide +kernel) (val459 V0)).trans (val459_main_arg2 V0)
theorem val460_main_arg3 (V0 : Valuation τ sig (Elt Ideal)) : val460 V0 (Proc.devRef .tc main_arg3) = aC V0 :=
  (after_keep _ 10 stepOps459_ok main_arg3 (by decide +kernel) (val459 V0)).trans (val459_main_arg3 V0)
theorem val460_main_v3 (V0 : Valuation τ sig (Elt Ideal)) : val460 V0 (Proc.devRef .tc main_v3) = decay (aA V0) :=
  (after_keep _ 10 stepOps459_ok main_v3 (by decide +kernel) (val459 V0)).trans (val459_main_v3 V0)
theorem val460_h (V0 : Valuation τ sig (Elt Ideal)) : val460 V0 (Proc.devRef .tc main_v9195) = hI (aX V0) (aA V0) (aB V0) 459 := by
  refine ((step459_val (val459 V0)).1).trans ?_
  rw [val459_main_arg0 V0, val459_main_v3 V0, val459_main_arg2 V0, val459_h V0]
  exact (hI_at (aX V0) (aA V0) (aB V0) 458 459 (by decide) rfl).symm
theorem val460_y (V0 : Valuation τ sig (Elt Ideal)) : val460 V0 (Proc.devRef .tc main_v9203) = yJ (aX V0) (aA V0) (aB V0) (aC V0) 460 := by
  refine ((step459_val (val459 V0)).2).trans ?_
  rw [val459_main_arg0 V0, val459_main_v3 V0, val459_main_arg2 V0, val459_main_arg3 V0, val459_h V0, val459_y V0]
  rw [← hI_at (aX V0) (aA V0) (aB V0) 458 459 (by decide) rfl]
  exact (yJ_at (aX V0) (aA V0) (aB V0) (aC V0) 459 460 (by decide) rfl).symm
/-- The contents after step 460. -/
def val461 (V0 : Valuation τ sig (Elt Ideal)) : Valuation τ sig (Elt Ideal) := after (stepOps460 (F := Ideal)) (val460 V0)
theorem val461_main_arg0 (V0 : Valuation τ sig (Elt Ideal)) : val461 V0 (Proc.devRef .tc main_arg0) = aX V0 :=
  (after_keep _ 10 stepOps460_ok main_arg0 (by decide +kernel) (val460 V0)).trans (val460_main_arg0 V0)
theorem val461_main_arg1 (V0 : Valuation τ sig (Elt Ideal)) : val461 V0 (Proc.devRef .tc main_arg1) = aA V0 :=
  (after_keep _ 10 stepOps460_ok main_arg1 (by decide +kernel) (val460 V0)).trans (val460_main_arg1 V0)
theorem val461_main_arg2 (V0 : Valuation τ sig (Elt Ideal)) : val461 V0 (Proc.devRef .tc main_arg2) = aB V0 :=
  (after_keep _ 10 stepOps460_ok main_arg2 (by decide +kernel) (val460 V0)).trans (val460_main_arg2 V0)
theorem val461_main_arg3 (V0 : Valuation τ sig (Elt Ideal)) : val461 V0 (Proc.devRef .tc main_arg3) = aC V0 :=
  (after_keep _ 10 stepOps460_ok main_arg3 (by decide +kernel) (val460 V0)).trans (val460_main_arg3 V0)
theorem val461_main_v3 (V0 : Valuation τ sig (Elt Ideal)) : val461 V0 (Proc.devRef .tc main_v3) = decay (aA V0) :=
  (after_keep _ 10 stepOps460_ok main_v3 (by decide +kernel) (val460 V0)).trans (val460_main_v3 V0)
theorem val461_h (V0 : Valuation τ sig (Elt Ideal)) : val461 V0 (Proc.devRef .tc main_v9215) = hI (aX V0) (aA V0) (aB V0) 460 := by
  refine ((step460_val (val460 V0)).1).trans ?_
  rw [val460_main_arg0 V0, val460_main_v3 V0, val460_main_arg2 V0, val460_h V0]
  exact (hI_at (aX V0) (aA V0) (aB V0) 459 460 (by decide) rfl).symm
theorem val461_y (V0 : Valuation τ sig (Elt Ideal)) : val461 V0 (Proc.devRef .tc main_v9223) = yJ (aX V0) (aA V0) (aB V0) (aC V0) 461 := by
  refine ((step460_val (val460 V0)).2).trans ?_
  rw [val460_main_arg0 V0, val460_main_v3 V0, val460_main_arg2 V0, val460_main_arg3 V0, val460_h V0, val460_y V0]
  rw [← hI_at (aX V0) (aA V0) (aB V0) 459 460 (by decide) rfl]
  exact (yJ_at (aX V0) (aA V0) (aB V0) (aC V0) 460 461 (by decide) rfl).symm
/-- The contents after step 461. -/
def val462 (V0 : Valuation τ sig (Elt Ideal)) : Valuation τ sig (Elt Ideal) := after (stepOps461 (F := Ideal)) (val461 V0)
theorem val462_main_arg0 (V0 : Valuation τ sig (Elt Ideal)) : val462 V0 (Proc.devRef .tc main_arg0) = aX V0 :=
  (after_keep _ 10 stepOps461_ok main_arg0 (by decide +kernel) (val461 V0)).trans (val461_main_arg0 V0)
theorem val462_main_arg1 (V0 : Valuation τ sig (Elt Ideal)) : val462 V0 (Proc.devRef .tc main_arg1) = aA V0 :=
  (after_keep _ 10 stepOps461_ok main_arg1 (by decide +kernel) (val461 V0)).trans (val461_main_arg1 V0)
theorem val462_main_arg2 (V0 : Valuation τ sig (Elt Ideal)) : val462 V0 (Proc.devRef .tc main_arg2) = aB V0 :=
  (after_keep _ 10 stepOps461_ok main_arg2 (by decide +kernel) (val461 V0)).trans (val461_main_arg2 V0)
theorem val462_main_arg3 (V0 : Valuation τ sig (Elt Ideal)) : val462 V0 (Proc.devRef .tc main_arg3) = aC V0 :=
  (after_keep _ 10 stepOps461_ok main_arg3 (by decide +kernel) (val461 V0)).trans (val461_main_arg3 V0)
theorem val462_main_v3 (V0 : Valuation τ sig (Elt Ideal)) : val462 V0 (Proc.devRef .tc main_v3) = decay (aA V0) :=
  (after_keep _ 10 stepOps461_ok main_v3 (by decide +kernel) (val461 V0)).trans (val461_main_v3 V0)
theorem val462_h (V0 : Valuation τ sig (Elt Ideal)) : val462 V0 (Proc.devRef .tc main_v9235) = hI (aX V0) (aA V0) (aB V0) 461 := by
  refine ((step461_val (val461 V0)).1).trans ?_
  rw [val461_main_arg0 V0, val461_main_v3 V0, val461_main_arg2 V0, val461_h V0]
  exact (hI_at (aX V0) (aA V0) (aB V0) 460 461 (by decide) rfl).symm
theorem val462_y (V0 : Valuation τ sig (Elt Ideal)) : val462 V0 (Proc.devRef .tc main_v9243) = yJ (aX V0) (aA V0) (aB V0) (aC V0) 462 := by
  refine ((step461_val (val461 V0)).2).trans ?_
  rw [val461_main_arg0 V0, val461_main_v3 V0, val461_main_arg2 V0, val461_main_arg3 V0, val461_h V0, val461_y V0]
  rw [← hI_at (aX V0) (aA V0) (aB V0) 460 461 (by decide) rfl]
  exact (yJ_at (aX V0) (aA V0) (aB V0) (aC V0) 461 462 (by decide) rfl).symm
/-- The contents after step 462. -/
def val463 (V0 : Valuation τ sig (Elt Ideal)) : Valuation τ sig (Elt Ideal) := after (stepOps462 (F := Ideal)) (val462 V0)
theorem val463_main_arg0 (V0 : Valuation τ sig (Elt Ideal)) : val463 V0 (Proc.devRef .tc main_arg0) = aX V0 :=
  (after_keep _ 10 stepOps462_ok main_arg0 (by decide +kernel) (val462 V0)).trans (val462_main_arg0 V0)
theorem val463_main_arg1 (V0 : Valuation τ sig (Elt Ideal)) : val463 V0 (Proc.devRef .tc main_arg1) = aA V0 :=
  (after_keep _ 10 stepOps462_ok main_arg1 (by decide +kernel) (val462 V0)).trans (val462_main_arg1 V0)
theorem val463_main_arg2 (V0 : Valuation τ sig (Elt Ideal)) : val463 V0 (Proc.devRef .tc main_arg2) = aB V0 :=
  (after_keep _ 10 stepOps462_ok main_arg2 (by decide +kernel) (val462 V0)).trans (val462_main_arg2 V0)
theorem val463_main_arg3 (V0 : Valuation τ sig (Elt Ideal)) : val463 V0 (Proc.devRef .tc main_arg3) = aC V0 :=
  (after_keep _ 10 stepOps462_ok main_arg3 (by decide +kernel) (val462 V0)).trans (val462_main_arg3 V0)
theorem val463_main_v3 (V0 : Valuation τ sig (Elt Ideal)) : val463 V0 (Proc.devRef .tc main_v3) = decay (aA V0) :=
  (after_keep _ 10 stepOps462_ok main_v3 (by decide +kernel) (val462 V0)).trans (val462_main_v3 V0)
theorem val463_h (V0 : Valuation τ sig (Elt Ideal)) : val463 V0 (Proc.devRef .tc main_v9255) = hI (aX V0) (aA V0) (aB V0) 462 := by
  refine ((step462_val (val462 V0)).1).trans ?_
  rw [val462_main_arg0 V0, val462_main_v3 V0, val462_main_arg2 V0, val462_h V0]
  exact (hI_at (aX V0) (aA V0) (aB V0) 461 462 (by decide) rfl).symm
theorem val463_y (V0 : Valuation τ sig (Elt Ideal)) : val463 V0 (Proc.devRef .tc main_v9263) = yJ (aX V0) (aA V0) (aB V0) (aC V0) 463 := by
  refine ((step462_val (val462 V0)).2).trans ?_
  rw [val462_main_arg0 V0, val462_main_v3 V0, val462_main_arg2 V0, val462_main_arg3 V0, val462_h V0, val462_y V0]
  rw [← hI_at (aX V0) (aA V0) (aB V0) 461 462 (by decide) rfl]
  exact (yJ_at (aX V0) (aA V0) (aB V0) (aC V0) 462 463 (by decide) rfl).symm
/-- The contents after step 463. -/
def val464 (V0 : Valuation τ sig (Elt Ideal)) : Valuation τ sig (Elt Ideal) := after (stepOps463 (F := Ideal)) (val463 V0)
theorem val464_main_arg0 (V0 : Valuation τ sig (Elt Ideal)) : val464 V0 (Proc.devRef .tc main_arg0) = aX V0 :=
  (after_keep _ 10 stepOps463_ok main_arg0 (by decide +kernel) (val463 V0)).trans (val463_main_arg0 V0)
theorem val464_main_arg1 (V0 : Valuation τ sig (Elt Ideal)) : val464 V0 (Proc.devRef .tc main_arg1) = aA V0 :=
  (after_keep _ 10 stepOps463_ok main_arg1 (by decide +kernel) (val463 V0)).trans (val463_main_arg1 V0)
theorem val464_main_arg2 (V0 : Valuation τ sig (Elt Ideal)) : val464 V0 (Proc.devRef .tc main_arg2) = aB V0 :=
  (after_keep _ 10 stepOps463_ok main_arg2 (by decide +kernel) (val463 V0)).trans (val463_main_arg2 V0)
theorem val464_main_arg3 (V0 : Valuation τ sig (Elt Ideal)) : val464 V0 (Proc.devRef .tc main_arg3) = aC V0 :=
  (after_keep _ 10 stepOps463_ok main_arg3 (by decide +kernel) (val463 V0)).trans (val463_main_arg3 V0)
theorem val464_main_v3 (V0 : Valuation τ sig (Elt Ideal)) : val464 V0 (Proc.devRef .tc main_v3) = decay (aA V0) :=
  (after_keep _ 10 stepOps463_ok main_v3 (by decide +kernel) (val463 V0)).trans (val463_main_v3 V0)
theorem val464_h (V0 : Valuation τ sig (Elt Ideal)) : val464 V0 (Proc.devRef .tc main_v9275) = hI (aX V0) (aA V0) (aB V0) 463 := by
  refine ((step463_val (val463 V0)).1).trans ?_
  rw [val463_main_arg0 V0, val463_main_v3 V0, val463_main_arg2 V0, val463_h V0]
  exact (hI_at (aX V0) (aA V0) (aB V0) 462 463 (by decide) rfl).symm
theorem val464_y (V0 : Valuation τ sig (Elt Ideal)) : val464 V0 (Proc.devRef .tc main_v9283) = yJ (aX V0) (aA V0) (aB V0) (aC V0) 464 := by
  refine ((step463_val (val463 V0)).2).trans ?_
  rw [val463_main_arg0 V0, val463_main_v3 V0, val463_main_arg2 V0, val463_main_arg3 V0, val463_h V0, val463_y V0]
  rw [← hI_at (aX V0) (aA V0) (aB V0) 462 463 (by decide) rfl]
  exact (yJ_at (aX V0) (aA V0) (aB V0) (aC V0) 463 464 (by decide) rfl).symm
/-- The contents after step 464. -/
def val465 (V0 : Valuation τ sig (Elt Ideal)) : Valuation τ sig (Elt Ideal) := after (stepOps464 (F := Ideal)) (val464 V0)
theorem val465_main_arg0 (V0 : Valuation τ sig (Elt Ideal)) : val465 V0 (Proc.devRef .tc main_arg0) = aX V0 :=
  (after_keep _ 10 stepOps464_ok main_arg0 (by decide +kernel) (val464 V0)).trans (val464_main_arg0 V0)
theorem val465_main_arg1 (V0 : Valuation τ sig (Elt Ideal)) : val465 V0 (Proc.devRef .tc main_arg1) = aA V0 :=
  (after_keep _ 10 stepOps464_ok main_arg1 (by decide +kernel) (val464 V0)).trans (val464_main_arg1 V0)
theorem val465_main_arg2 (V0 : Valuation τ sig (Elt Ideal)) : val465 V0 (Proc.devRef .tc main_arg2) = aB V0 :=
  (after_keep _ 10 stepOps464_ok main_arg2 (by decide +kernel) (val464 V0)).trans (val464_main_arg2 V0)
theorem val465_main_arg3 (V0 : Valuation τ sig (Elt Ideal)) : val465 V0 (Proc.devRef .tc main_arg3) = aC V0 :=
  (after_keep _ 10 stepOps464_ok main_arg3 (by decide +kernel) (val464 V0)).trans (val464_main_arg3 V0)
theorem val465_main_v3 (V0 : Valuation τ sig (Elt Ideal)) : val465 V0 (Proc.devRef .tc main_v3) = decay (aA V0) :=
  (after_keep _ 10 stepOps464_ok main_v3 (by decide +kernel) (val464 V0)).trans (val464_main_v3 V0)
theorem val465_h (V0 : Valuation τ sig (Elt Ideal)) : val465 V0 (Proc.devRef .tc main_v9295) = hI (aX V0) (aA V0) (aB V0) 464 := by
  refine ((step464_val (val464 V0)).1).trans ?_
  rw [val464_main_arg0 V0, val464_main_v3 V0, val464_main_arg2 V0, val464_h V0]
  exact (hI_at (aX V0) (aA V0) (aB V0) 463 464 (by decide) rfl).symm
theorem val465_y (V0 : Valuation τ sig (Elt Ideal)) : val465 V0 (Proc.devRef .tc main_v9303) = yJ (aX V0) (aA V0) (aB V0) (aC V0) 465 := by
  refine ((step464_val (val464 V0)).2).trans ?_
  rw [val464_main_arg0 V0, val464_main_v3 V0, val464_main_arg2 V0, val464_main_arg3 V0, val464_h V0, val464_y V0]
  rw [← hI_at (aX V0) (aA V0) (aB V0) 463 464 (by decide) rfl]
  exact (yJ_at (aX V0) (aA V0) (aB V0) (aC V0) 464 465 (by decide) rfl).symm
/-- The contents after step 465. -/
def val466 (V0 : Valuation τ sig (Elt Ideal)) : Valuation τ sig (Elt Ideal) := after (stepOps465 (F := Ideal)) (val465 V0)
theorem val466_main_arg0 (V0 : Valuation τ sig (Elt Ideal)) : val466 V0 (Proc.devRef .tc main_arg0) = aX V0 :=
  (after_keep _ 10 stepOps465_ok main_arg0 (by decide +kernel) (val465 V0)).trans (val465_main_arg0 V0)
theorem val466_main_arg1 (V0 : Valuation τ sig (Elt Ideal)) : val466 V0 (Proc.devRef .tc main_arg1) = aA V0 :=
  (after_keep _ 10 stepOps465_ok main_arg1 (by decide +kernel) (val465 V0)).trans (val465_main_arg1 V0)
theorem val466_main_arg2 (V0 : Valuation τ sig (Elt Ideal)) : val466 V0 (Proc.devRef .tc main_arg2) = aB V0 :=
  (after_keep _ 10 stepOps465_ok main_arg2 (by decide +kernel) (val465 V0)).trans (val465_main_arg2 V0)
theorem val466_main_arg3 (V0 : Valuation τ sig (Elt Ideal)) : val466 V0 (Proc.devRef .tc main_arg3) = aC V0 :=
  (after_keep _ 10 stepOps465_ok main_arg3 (by decide +kernel) (val465 V0)).trans (val465_main_arg3 V0)
theorem val466_main_v3 (V0 : Valuation τ sig (Elt Ideal)) : val466 V0 (Proc.devRef .tc main_v3) = decay (aA V0) :=
  (after_keep _ 10 stepOps465_ok main_v3 (by decide +kernel) (val465 V0)).trans (val465_main_v3 V0)
theorem val466_h (V0 : Valuation τ sig (Elt Ideal)) : val466 V0 (Proc.devRef .tc main_v9315) = hI (aX V0) (aA V0) (aB V0) 465 := by
  refine ((step465_val (val465 V0)).1).trans ?_
  rw [val465_main_arg0 V0, val465_main_v3 V0, val465_main_arg2 V0, val465_h V0]
  exact (hI_at (aX V0) (aA V0) (aB V0) 464 465 (by decide) rfl).symm
theorem val466_y (V0 : Valuation τ sig (Elt Ideal)) : val466 V0 (Proc.devRef .tc main_v9323) = yJ (aX V0) (aA V0) (aB V0) (aC V0) 466 := by
  refine ((step465_val (val465 V0)).2).trans ?_
  rw [val465_main_arg0 V0, val465_main_v3 V0, val465_main_arg2 V0, val465_main_arg3 V0, val465_h V0, val465_y V0]
  rw [← hI_at (aX V0) (aA V0) (aB V0) 464 465 (by decide) rfl]
  exact (yJ_at (aX V0) (aA V0) (aB V0) (aC V0) 465 466 (by decide) rfl).symm
/-- The contents after step 466. -/
def val467 (V0 : Valuation τ sig (Elt Ideal)) : Valuation τ sig (Elt Ideal) := after (stepOps466 (F := Ideal)) (val466 V0)
theorem val467_main_arg0 (V0 : Valuation τ sig (Elt Ideal)) : val467 V0 (Proc.devRef .tc main_arg0) = aX V0 :=
  (after_keep _ 10 stepOps466_ok main_arg0 (by decide +kernel) (val466 V0)).trans (val466_main_arg0 V0)
theorem val467_main_arg1 (V0 : Valuation τ sig (Elt Ideal)) : val467 V0 (Proc.devRef .tc main_arg1) = aA V0 :=
  (after_keep _ 10 stepOps466_ok main_arg1 (by decide +kernel) (val466 V0)).trans (val466_main_arg1 V0)
theorem val467_main_arg2 (V0 : Valuation τ sig (Elt Ideal)) : val467 V0 (Proc.devRef .tc main_arg2) = aB V0 :=
  (after_keep _ 10 stepOps466_ok main_arg2 (by decide +kernel) (val466 V0)).trans (val466_main_arg2 V0)
theorem val467_main_arg3 (V0 : Valuation τ sig (Elt Ideal)) : val467 V0 (Proc.devRef .tc main_arg3) = aC V0 :=
  (after_keep _ 10 stepOps466_ok main_arg3 (by decide +kernel) (val466 V0)).trans (val466_main_arg3 V0)
theorem val467_main_v3 (V0 : Valuation τ sig (Elt Ideal)) : val467 V0 (Proc.devRef .tc main_v3) = decay (aA V0) :=
  (after_keep _ 10 stepOps466_ok main_v3 (by decide +kernel) (val466 V0)).trans (val466_main_v3 V0)
theorem val467_h (V0 : Valuation τ sig (Elt Ideal)) : val467 V0 (Proc.devRef .tc main_v9335) = hI (aX V0) (aA V0) (aB V0) 466 := by
  refine ((step466_val (val466 V0)).1).trans ?_
  rw [val466_main_arg0 V0, val466_main_v3 V0, val466_main_arg2 V0, val466_h V0]
  exact (hI_at (aX V0) (aA V0) (aB V0) 465 466 (by decide) rfl).symm
theorem val467_y (V0 : Valuation τ sig (Elt Ideal)) : val467 V0 (Proc.devRef .tc main_v9343) = yJ (aX V0) (aA V0) (aB V0) (aC V0) 467 := by
  refine ((step466_val (val466 V0)).2).trans ?_
  rw [val466_main_arg0 V0, val466_main_v3 V0, val466_main_arg2 V0, val466_main_arg3 V0, val466_h V0, val466_y V0]
  rw [← hI_at (aX V0) (aA V0) (aB V0) 465 466 (by decide) rfl]
  exact (yJ_at (aX V0) (aA V0) (aB V0) (aC V0) 466 467 (by decide) rfl).symm
/-- The contents after step 467. -/
def val468 (V0 : Valuation τ sig (Elt Ideal)) : Valuation τ sig (Elt Ideal) := after (stepOps467 (F := Ideal)) (val467 V0)
theorem val468_main_arg0 (V0 : Valuation τ sig (Elt Ideal)) : val468 V0 (Proc.devRef .tc main_arg0) = aX V0 :=
  (after_keep _ 10 stepOps467_ok main_arg0 (by decide +kernel) (val467 V0)).trans (val467_main_arg0 V0)
theorem val468_main_arg1 (V0 : Valuation τ sig (Elt Ideal)) : val468 V0 (Proc.devRef .tc main_arg1) = aA V0 :=
  (after_keep _ 10 stepOps467_ok main_arg1 (by decide +kernel) (val467 V0)).trans (val467_main_arg1 V0)
theorem val468_main_arg2 (V0 : Valuation τ sig (Elt Ideal)) : val468 V0 (Proc.devRef .tc main_arg2) = aB V0 :=
  (after_keep _ 10 stepOps467_ok main_arg2 (by decide +kernel) (val467 V0)).trans (val467_main_arg2 V0)
theorem val468_main_arg3 (V0 : Valuation τ sig (Elt Ideal)) : val468 V0 (Proc.devRef .tc main_arg3) = aC V0 :=
  (after_keep _ 10 stepOps467_ok main_arg3 (by decide +kernel) (val467 V0)).trans (val467_main_arg3 V0)
theorem val468_main_v3 (V0 : Valuation τ sig (Elt Ideal)) : val468 V0 (Proc.devRef .tc main_v3) = decay (aA V0) :=
  (after_keep _ 10 stepOps467_ok main_v3 (by decide +kernel) (val467 V0)).trans (val467_main_v3 V0)
theorem val468_h (V0 : Valuation τ sig (Elt Ideal)) : val468 V0 (Proc.devRef .tc main_v9355) = hI (aX V0) (aA V0) (aB V0) 467 := by
  refine ((step467_val (val467 V0)).1).trans ?_
  rw [val467_main_arg0 V0, val467_main_v3 V0, val467_main_arg2 V0, val467_h V0]
  exact (hI_at (aX V0) (aA V0) (aB V0) 466 467 (by decide) rfl).symm
theorem val468_y (V0 : Valuation τ sig (Elt Ideal)) : val468 V0 (Proc.devRef .tc main_v9363) = yJ (aX V0) (aA V0) (aB V0) (aC V0) 468 := by
  refine ((step467_val (val467 V0)).2).trans ?_
  rw [val467_main_arg0 V0, val467_main_v3 V0, val467_main_arg2 V0, val467_main_arg3 V0, val467_h V0, val467_y V0]
  rw [← hI_at (aX V0) (aA V0) (aB V0) 466 467 (by decide) rfl]
  exact (yJ_at (aX V0) (aA V0) (aB V0) (aC V0) 467 468 (by decide) rfl).symm
/-- The contents after step 468. -/
def val469 (V0 : Valuation τ sig (Elt Ideal)) : Valuation τ sig (Elt Ideal) := after (stepOps468 (F := Ideal)) (val468 V0)
theorem val469_main_arg0 (V0 : Valuation τ sig (Elt Ideal)) : val469 V0 (Proc.devRef .tc main_arg0) = aX V0 :=
  (after_keep _ 10 stepOps468_ok main_arg0 (by decide +kernel) (val468 V0)).trans (val468_main_arg0 V0)
theorem val469_main_arg1 (V0 : Valuation τ sig (Elt Ideal)) : val469 V0 (Proc.devRef .tc main_arg1) = aA V0 :=
  (after_keep _ 10 stepOps468_ok main_arg1 (by decide +kernel) (val468 V0)).trans (val468_main_arg1 V0)
theorem val469_main_arg2 (V0 : Valuation τ sig (Elt Ideal)) : val469 V0 (Proc.devRef .tc main_arg2) = aB V0 :=
  (after_keep _ 10 stepOps468_ok main_arg2 (by decide +kernel) (val468 V0)).trans (val468_main_arg2 V0)
theorem val469_main_arg3 (V0 : Valuation τ sig (Elt Ideal)) : val469 V0 (Proc.devRef .tc main_arg3) = aC V0 :=
  (after_keep _ 10 stepOps468_ok main_arg3 (by decide +kernel) (val468 V0)).trans (val468_main_arg3 V0)
theorem val469_main_v3 (V0 : Valuation τ sig (Elt Ideal)) : val469 V0 (Proc.devRef .tc main_v3) = decay (aA V0) :=
  (after_keep _ 10 stepOps468_ok main_v3 (by decide +kernel) (val468 V0)).trans (val468_main_v3 V0)
theorem val469_h (V0 : Valuation τ sig (Elt Ideal)) : val469 V0 (Proc.devRef .tc main_v9375) = hI (aX V0) (aA V0) (aB V0) 468 := by
  refine ((step468_val (val468 V0)).1).trans ?_
  rw [val468_main_arg0 V0, val468_main_v3 V0, val468_main_arg2 V0, val468_h V0]
  exact (hI_at (aX V0) (aA V0) (aB V0) 467 468 (by decide) rfl).symm
theorem val469_y (V0 : Valuation τ sig (Elt Ideal)) : val469 V0 (Proc.devRef .tc main_v9383) = yJ (aX V0) (aA V0) (aB V0) (aC V0) 469 := by
  refine ((step468_val (val468 V0)).2).trans ?_
  rw [val468_main_arg0 V0, val468_main_v3 V0, val468_main_arg2 V0, val468_main_arg3 V0, val468_h V0, val468_y V0]
  rw [← hI_at (aX V0) (aA V0) (aB V0) 467 468 (by decide) rfl]
  exact (yJ_at (aX V0) (aA V0) (aB V0) (aC V0) 468 469 (by decide) rfl).symm
/-- The contents after step 469. -/
def val470 (V0 : Valuation τ sig (Elt Ideal)) : Valuation τ sig (Elt Ideal) := after (stepOps469 (F := Ideal)) (val469 V0)
theorem val470_main_arg0 (V0 : Valuation τ sig (Elt Ideal)) : val470 V0 (Proc.devRef .tc main_arg0) = aX V0 :=
  (after_keep _ 10 stepOps469_ok main_arg0 (by decide +kernel) (val469 V0)).trans (val469_main_arg0 V0)
theorem val470_main_arg1 (V0 : Valuation τ sig (Elt Ideal)) : val470 V0 (Proc.devRef .tc main_arg1) = aA V0 :=
  (after_keep _ 10 stepOps469_ok main_arg1 (by decide +kernel) (val469 V0)).trans (val469_main_arg1 V0)
theorem val470_main_arg2 (V0 : Valuation τ sig (Elt Ideal)) : val470 V0 (Proc.devRef .tc main_arg2) = aB V0 :=
  (after_keep _ 10 stepOps469_ok main_arg2 (by decide +kernel) (val469 V0)).trans (val469_main_arg2 V0)
theorem val470_main_arg3 (V0 : Valuation τ sig (Elt Ideal)) : val470 V0 (Proc.devRef .tc main_arg3) = aC V0 :=
  (after_keep _ 10 stepOps469_ok main_arg3 (by decide +kernel) (val469 V0)).trans (val469_main_arg3 V0)
theorem val470_main_v3 (V0 : Valuation τ sig (Elt Ideal)) : val470 V0 (Proc.devRef .tc main_v3) = decay (aA V0) :=
  (after_keep _ 10 stepOps469_ok main_v3 (by decide +kernel) (val469 V0)).trans (val469_main_v3 V0)
theorem val470_h (V0 : Valuation τ sig (Elt Ideal)) : val470 V0 (Proc.devRef .tc main_v9395) = hI (aX V0) (aA V0) (aB V0) 469 := by
  refine ((step469_val (val469 V0)).1).trans ?_
  rw [val469_main_arg0 V0, val469_main_v3 V0, val469_main_arg2 V0, val469_h V0]
  exact (hI_at (aX V0) (aA V0) (aB V0) 468 469 (by decide) rfl).symm
theorem val470_y (V0 : Valuation τ sig (Elt Ideal)) : val470 V0 (Proc.devRef .tc main_v9403) = yJ (aX V0) (aA V0) (aB V0) (aC V0) 470 := by
  refine ((step469_val (val469 V0)).2).trans ?_
  rw [val469_main_arg0 V0, val469_main_v3 V0, val469_main_arg2 V0, val469_main_arg3 V0, val469_h V0, val469_y V0]
  rw [← hI_at (aX V0) (aA V0) (aB V0) 468 469 (by decide) rfl]
  exact (yJ_at (aX V0) (aA V0) (aB V0) (aC V0) 469 470 (by decide) rfl).symm
/-- The contents after step 470. -/
def val471 (V0 : Valuation τ sig (Elt Ideal)) : Valuation τ sig (Elt Ideal) := after (stepOps470 (F := Ideal)) (val470 V0)
theorem val471_main_arg0 (V0 : Valuation τ sig (Elt Ideal)) : val471 V0 (Proc.devRef .tc main_arg0) = aX V0 :=
  (after_keep _ 10 stepOps470_ok main_arg0 (by decide +kernel) (val470 V0)).trans (val470_main_arg0 V0)
theorem val471_main_arg1 (V0 : Valuation τ sig (Elt Ideal)) : val471 V0 (Proc.devRef .tc main_arg1) = aA V0 :=
  (after_keep _ 10 stepOps470_ok main_arg1 (by decide +kernel) (val470 V0)).trans (val470_main_arg1 V0)
theorem val471_main_arg2 (V0 : Valuation τ sig (Elt Ideal)) : val471 V0 (Proc.devRef .tc main_arg2) = aB V0 :=
  (after_keep _ 10 stepOps470_ok main_arg2 (by decide +kernel) (val470 V0)).trans (val470_main_arg2 V0)
theorem val471_main_arg3 (V0 : Valuation τ sig (Elt Ideal)) : val471 V0 (Proc.devRef .tc main_arg3) = aC V0 :=
  (after_keep _ 10 stepOps470_ok main_arg3 (by decide +kernel) (val470 V0)).trans (val470_main_arg3 V0)
theorem val471_main_v3 (V0 : Valuation τ sig (Elt Ideal)) : val471 V0 (Proc.devRef .tc main_v3) = decay (aA V0) :=
  (after_keep _ 10 stepOps470_ok main_v3 (by decide +kernel) (val470 V0)).trans (val470_main_v3 V0)
theorem val471_h (V0 : Valuation τ sig (Elt Ideal)) : val471 V0 (Proc.devRef .tc main_v9415) = hI (aX V0) (aA V0) (aB V0) 470 := by
  refine ((step470_val (val470 V0)).1).trans ?_
  rw [val470_main_arg0 V0, val470_main_v3 V0, val470_main_arg2 V0, val470_h V0]
  exact (hI_at (aX V0) (aA V0) (aB V0) 469 470 (by decide) rfl).symm
theorem val471_y (V0 : Valuation τ sig (Elt Ideal)) : val471 V0 (Proc.devRef .tc main_v9423) = yJ (aX V0) (aA V0) (aB V0) (aC V0) 471 := by
  refine ((step470_val (val470 V0)).2).trans ?_
  rw [val470_main_arg0 V0, val470_main_v3 V0, val470_main_arg2 V0, val470_main_arg3 V0, val470_h V0, val470_y V0]
  rw [← hI_at (aX V0) (aA V0) (aB V0) 469 470 (by decide) rfl]
  exact (yJ_at (aX V0) (aA V0) (aB V0) (aC V0) 470 471 (by decide) rfl).symm
/-- The contents after step 471. -/
def val472 (V0 : Valuation τ sig (Elt Ideal)) : Valuation τ sig (Elt Ideal) := after (stepOps471 (F := Ideal)) (val471 V0)
theorem val472_main_arg0 (V0 : Valuation τ sig (Elt Ideal)) : val472 V0 (Proc.devRef .tc main_arg0) = aX V0 :=
  (after_keep _ 10 stepOps471_ok main_arg0 (by decide +kernel) (val471 V0)).trans (val471_main_arg0 V0)
theorem val472_main_arg1 (V0 : Valuation τ sig (Elt Ideal)) : val472 V0 (Proc.devRef .tc main_arg1) = aA V0 :=
  (after_keep _ 10 stepOps471_ok main_arg1 (by decide +kernel) (val471 V0)).trans (val471_main_arg1 V0)
theorem val472_main_arg2 (V0 : Valuation τ sig (Elt Ideal)) : val472 V0 (Proc.devRef .tc main_arg2) = aB V0 :=
  (after_keep _ 10 stepOps471_ok main_arg2 (by decide +kernel) (val471 V0)).trans (val471_main_arg2 V0)
theorem val472_main_arg3 (V0 : Valuation τ sig (Elt Ideal)) : val472 V0 (Proc.devRef .tc main_arg3) = aC V0 :=
  (after_keep _ 10 stepOps471_ok main_arg3 (by decide +kernel) (val471 V0)).trans (val471_main_arg3 V0)
theorem val472_main_v3 (V0 : Valuation τ sig (Elt Ideal)) : val472 V0 (Proc.devRef .tc main_v3) = decay (aA V0) :=
  (after_keep _ 10 stepOps471_ok main_v3 (by decide +kernel) (val471 V0)).trans (val471_main_v3 V0)
theorem val472_h (V0 : Valuation τ sig (Elt Ideal)) : val472 V0 (Proc.devRef .tc main_v9435) = hI (aX V0) (aA V0) (aB V0) 471 := by
  refine ((step471_val (val471 V0)).1).trans ?_
  rw [val471_main_arg0 V0, val471_main_v3 V0, val471_main_arg2 V0, val471_h V0]
  exact (hI_at (aX V0) (aA V0) (aB V0) 470 471 (by decide) rfl).symm
theorem val472_y (V0 : Valuation τ sig (Elt Ideal)) : val472 V0 (Proc.devRef .tc main_v9443) = yJ (aX V0) (aA V0) (aB V0) (aC V0) 472 := by
  refine ((step471_val (val471 V0)).2).trans ?_
  rw [val471_main_arg0 V0, val471_main_v3 V0, val471_main_arg2 V0, val471_main_arg3 V0, val471_h V0, val471_y V0]
  rw [← hI_at (aX V0) (aA V0) (aB V0) 470 471 (by decide) rfl]
  exact (yJ_at (aX V0) (aA V0) (aB V0) (aC V0) 471 472 (by decide) rfl).symm
/-- The contents after step 472. -/
def val473 (V0 : Valuation τ sig (Elt Ideal)) : Valuation τ sig (Elt Ideal) := after (stepOps472 (F := Ideal)) (val472 V0)
theorem val473_main_arg0 (V0 : Valuation τ sig (Elt Ideal)) : val473 V0 (Proc.devRef .tc main_arg0) = aX V0 :=
  (after_keep _ 10 stepOps472_ok main_arg0 (by decide +kernel) (val472 V0)).trans (val472_main_arg0 V0)
theorem val473_main_arg1 (V0 : Valuation τ sig (Elt Ideal)) : val473 V0 (Proc.devRef .tc main_arg1) = aA V0 :=
  (after_keep _ 10 stepOps472_ok main_arg1 (by decide +kernel) (val472 V0)).trans (val472_main_arg1 V0)
theorem val473_main_arg2 (V0 : Valuation τ sig (Elt Ideal)) : val473 V0 (Proc.devRef .tc main_arg2) = aB V0 :=
  (after_keep _ 10 stepOps472_ok main_arg2 (by decide +kernel) (val472 V0)).trans (val472_main_arg2 V0)
theorem val473_main_arg3 (V0 : Valuation τ sig (Elt Ideal)) : val473 V0 (Proc.devRef .tc main_arg3) = aC V0 :=
  (after_keep _ 10 stepOps472_ok main_arg3 (by decide +kernel) (val472 V0)).trans (val472_main_arg3 V0)
theorem val473_main_v3 (V0 : Valuation τ sig (Elt Ideal)) : val473 V0 (Proc.devRef .tc main_v3) = decay (aA V0) :=
  (after_keep _ 10 stepOps472_ok main_v3 (by decide +kernel) (val472 V0)).trans (val472_main_v3 V0)
theorem val473_h (V0 : Valuation τ sig (Elt Ideal)) : val473 V0 (Proc.devRef .tc main_v9455) = hI (aX V0) (aA V0) (aB V0) 472 := by
  refine ((step472_val (val472 V0)).1).trans ?_
  rw [val472_main_arg0 V0, val472_main_v3 V0, val472_main_arg2 V0, val472_h V0]
  exact (hI_at (aX V0) (aA V0) (aB V0) 471 472 (by decide) rfl).symm
theorem val473_y (V0 : Valuation τ sig (Elt Ideal)) : val473 V0 (Proc.devRef .tc main_v9463) = yJ (aX V0) (aA V0) (aB V0) (aC V0) 473 := by
  refine ((step472_val (val472 V0)).2).trans ?_
  rw [val472_main_arg0 V0, val472_main_v3 V0, val472_main_arg2 V0, val472_main_arg3 V0, val472_h V0, val472_y V0]
  rw [← hI_at (aX V0) (aA V0) (aB V0) 471 472 (by decide) rfl]
  exact (yJ_at (aX V0) (aA V0) (aB V0) (aC V0) 472 473 (by decide) rfl).symm
/-- The contents after step 473. -/
def val474 (V0 : Valuation τ sig (Elt Ideal)) : Valuation τ sig (Elt Ideal) := after (stepOps473 (F := Ideal)) (val473 V0)
theorem val474_main_arg0 (V0 : Valuation τ sig (Elt Ideal)) : val474 V0 (Proc.devRef .tc main_arg0) = aX V0 :=
  (after_keep _ 10 stepOps473_ok main_arg0 (by decide +kernel) (val473 V0)).trans (val473_main_arg0 V0)
theorem val474_main_arg1 (V0 : Valuation τ sig (Elt Ideal)) : val474 V0 (Proc.devRef .tc main_arg1) = aA V0 :=
  (after_keep _ 10 stepOps473_ok main_arg1 (by decide +kernel) (val473 V0)).trans (val473_main_arg1 V0)
theorem val474_main_arg2 (V0 : Valuation τ sig (Elt Ideal)) : val474 V0 (Proc.devRef .tc main_arg2) = aB V0 :=
  (after_keep _ 10 stepOps473_ok main_arg2 (by decide +kernel) (val473 V0)).trans (val473_main_arg2 V0)
theorem val474_main_arg3 (V0 : Valuation τ sig (Elt Ideal)) : val474 V0 (Proc.devRef .tc main_arg3) = aC V0 :=
  (after_keep _ 10 stepOps473_ok main_arg3 (by decide +kernel) (val473 V0)).trans (val473_main_arg3 V0)
theorem val474_main_v3 (V0 : Valuation τ sig (Elt Ideal)) : val474 V0 (Proc.devRef .tc main_v3) = decay (aA V0) :=
  (after_keep _ 10 stepOps473_ok main_v3 (by decide +kernel) (val473 V0)).trans (val473_main_v3 V0)
theorem val474_h (V0 : Valuation τ sig (Elt Ideal)) : val474 V0 (Proc.devRef .tc main_v9475) = hI (aX V0) (aA V0) (aB V0) 473 := by
  refine ((step473_val (val473 V0)).1).trans ?_
  rw [val473_main_arg0 V0, val473_main_v3 V0, val473_main_arg2 V0, val473_h V0]
  exact (hI_at (aX V0) (aA V0) (aB V0) 472 473 (by decide) rfl).symm
theorem val474_y (V0 : Valuation τ sig (Elt Ideal)) : val474 V0 (Proc.devRef .tc main_v9483) = yJ (aX V0) (aA V0) (aB V0) (aC V0) 474 := by
  refine ((step473_val (val473 V0)).2).trans ?_
  rw [val473_main_arg0 V0, val473_main_v3 V0, val473_main_arg2 V0, val473_main_arg3 V0, val473_h V0, val473_y V0]
  rw [← hI_at (aX V0) (aA V0) (aB V0) 472 473 (by decide) rfl]
  exact (yJ_at (aX V0) (aA V0) (aB V0) (aC V0) 473 474 (by decide) rfl).symm
/-- The contents after step 474. -/
def val475 (V0 : Valuation τ sig (Elt Ideal)) : Valuation τ sig (Elt Ideal) := after (stepOps474 (F := Ideal)) (val474 V0)
theorem val475_main_arg0 (V0 : Valuation τ sig (Elt Ideal)) : val475 V0 (Proc.devRef .tc main_arg0) = aX V0 :=
  (after_keep _ 10 stepOps474_ok main_arg0 (by decide +kernel) (val474 V0)).trans (val474_main_arg0 V0)
theorem val475_main_arg1 (V0 : Valuation τ sig (Elt Ideal)) : val475 V0 (Proc.devRef .tc main_arg1) = aA V0 :=
  (after_keep _ 10 stepOps474_ok main_arg1 (by decide +kernel) (val474 V0)).trans (val474_main_arg1 V0)
theorem val475_main_arg2 (V0 : Valuation τ sig (Elt Ideal)) : val475 V0 (Proc.devRef .tc main_arg2) = aB V0 :=
  (after_keep _ 10 stepOps474_ok main_arg2 (by decide +kernel) (val474 V0)).trans (val474_main_arg2 V0)
theorem val475_main_arg3 (V0 : Valuation τ sig (Elt Ideal)) : val475 V0 (Proc.devRef .tc main_arg3) = aC V0 :=
  (after_keep _ 10 stepOps474_ok main_arg3 (by decide +kernel) (val474 V0)).trans (val474_main_arg3 V0)
theorem val475_main_v3 (V0 : Valuation τ sig (Elt Ideal)) : val475 V0 (Proc.devRef .tc main_v3) = decay (aA V0) :=
  (after_keep _ 10 stepOps474_ok main_v3 (by decide +kernel) (val474 V0)).trans (val474_main_v3 V0)
theorem val475_h (V0 : Valuation τ sig (Elt Ideal)) : val475 V0 (Proc.devRef .tc main_v9495) = hI (aX V0) (aA V0) (aB V0) 474 := by
  refine ((step474_val (val474 V0)).1).trans ?_
  rw [val474_main_arg0 V0, val474_main_v3 V0, val474_main_arg2 V0, val474_h V0]
  exact (hI_at (aX V0) (aA V0) (aB V0) 473 474 (by decide) rfl).symm
theorem val475_y (V0 : Valuation τ sig (Elt Ideal)) : val475 V0 (Proc.devRef .tc main_v9503) = yJ (aX V0) (aA V0) (aB V0) (aC V0) 475 := by
  refine ((step474_val (val474 V0)).2).trans ?_
  rw [val474_main_arg0 V0, val474_main_v3 V0, val474_main_arg2 V0, val474_main_arg3 V0, val474_h V0, val474_y V0]
  rw [← hI_at (aX V0) (aA V0) (aB V0) 473 474 (by decide) rfl]
  exact (yJ_at (aX V0) (aA V0) (aB V0) (aC V0) 474 475 (by decide) rfl).symm
/-- The contents after step 475. -/
def val476 (V0 : Valuation τ sig (Elt Ideal)) : Valuation τ sig (Elt Ideal) := after (stepOps475 (F := Ideal)) (val475 V0)
theorem val476_main_arg0 (V0 : Valuation τ sig (Elt Ideal)) : val476 V0 (Proc.devRef .tc main_arg0) = aX V0 :=
  (after_keep _ 10 stepOps475_ok main_arg0 (by decide +kernel) (val475 V0)).trans (val475_main_arg0 V0)
theorem val476_main_arg1 (V0 : Valuation τ sig (Elt Ideal)) : val476 V0 (Proc.devRef .tc main_arg1) = aA V0 :=
  (after_keep _ 10 stepOps475_ok main_arg1 (by decide +kernel) (val475 V0)).trans (val475_main_arg1 V0)
theorem val476_main_arg2 (V0 : Valuation τ sig (Elt Ideal)) : val476 V0 (Proc.devRef .tc main_arg2) = aB V0 :=
  (after_keep _ 10 stepOps475_ok main_arg2 (by decide +kernel) (val475 V0)).trans (val475_main_arg2 V0)
theorem val476_main_arg3 (V0 : Valuation τ sig (Elt Ideal)) : val476 V0 (Proc.devRef .tc main_arg3) = aC V0 :=
  (after_keep _ 10 stepOps475_ok main_arg3 (by decide +kernel) (val475 V0)).trans (val475_main_arg3 V0)
theorem val476_main_v3 (V0 : Valuation τ sig (Elt Ideal)) : val476 V0 (Proc.devRef .tc main_v3) = decay (aA V0) :=
  (after_keep _ 10 stepOps475_ok main_v3 (by decide +kernel) (val475 V0)).trans (val475_main_v3 V0)
theorem val476_h (V0 : Valuation τ sig (Elt Ideal)) : val476 V0 (Proc.devRef .tc main_v9515) = hI (aX V0) (aA V0) (aB V0) 475 := by
  refine ((step475_val (val475 V0)).1).trans ?_
  rw [val475_main_arg0 V0, val475_main_v3 V0, val475_main_arg2 V0, val475_h V0]
  exact (hI_at (aX V0) (aA V0) (aB V0) 474 475 (by decide) rfl).symm
theorem val476_y (V0 : Valuation τ sig (Elt Ideal)) : val476 V0 (Proc.devRef .tc main_v9523) = yJ (aX V0) (aA V0) (aB V0) (aC V0) 476 := by
  refine ((step475_val (val475 V0)).2).trans ?_
  rw [val475_main_arg0 V0, val475_main_v3 V0, val475_main_arg2 V0, val475_main_arg3 V0, val475_h V0, val475_y V0]
  rw [← hI_at (aX V0) (aA V0) (aB V0) 474 475 (by decide) rfl]
  exact (yJ_at (aX V0) (aA V0) (aB V0) (aC V0) 475 476 (by decide) rfl).symm
/-- The contents after step 476. -/
def val477 (V0 : Valuation τ sig (Elt Ideal)) : Valuation τ sig (Elt Ideal) := after (stepOps476 (F := Ideal)) (val476 V0)
theorem val477_main_arg0 (V0 : Valuation τ sig (Elt Ideal)) : val477 V0 (Proc.devRef .tc main_arg0) = aX V0 :=
  (after_keep _ 10 stepOps476_ok main_arg0 (by decide +kernel) (val476 V0)).trans (val476_main_arg0 V0)
theorem val477_main_arg1 (V0 : Valuation τ sig (Elt Ideal)) : val477 V0 (Proc.devRef .tc main_arg1) = aA V0 :=
  (after_keep _ 10 stepOps476_ok main_arg1 (by decide +kernel) (val476 V0)).trans (val476_main_arg1 V0)
theorem val477_main_arg2 (V0 : Valuation τ sig (Elt Ideal)) : val477 V0 (Proc.devRef .tc main_arg2) = aB V0 :=
  (after_keep _ 10 stepOps476_ok main_arg2 (by decide +kernel) (val476 V0)).trans (val476_main_arg2 V0)
theorem val477_main_arg3 (V0 : Valuation τ sig (Elt Ideal)) : val477 V0 (Proc.devRef .tc main_arg3) = aC V0 :=
  (after_keep _ 10 stepOps476_ok main_arg3 (by decide +kernel) (val476 V0)).trans (val476_main_arg3 V0)
theorem val477_main_v3 (V0 : Valuation τ sig (Elt Ideal)) : val477 V0 (Proc.devRef .tc main_v3) = decay (aA V0) :=
  (after_keep _ 10 stepOps476_ok main_v3 (by decide +kernel) (val476 V0)).trans (val476_main_v3 V0)
theorem val477_h (V0 : Valuation τ sig (Elt Ideal)) : val477 V0 (Proc.devRef .tc main_v9535) = hI (aX V0) (aA V0) (aB V0) 476 := by
  refine ((step476_val (val476 V0)).1).trans ?_
  rw [val476_main_arg0 V0, val476_main_v3 V0, val476_main_arg2 V0, val476_h V0]
  exact (hI_at (aX V0) (aA V0) (aB V0) 475 476 (by decide) rfl).symm
theorem val477_y (V0 : Valuation τ sig (Elt Ideal)) : val477 V0 (Proc.devRef .tc main_v9543) = yJ (aX V0) (aA V0) (aB V0) (aC V0) 477 := by
  refine ((step476_val (val476 V0)).2).trans ?_
  rw [val476_main_arg0 V0, val476_main_v3 V0, val476_main_arg2 V0, val476_main_arg3 V0, val476_h V0, val476_y V0]
  rw [← hI_at (aX V0) (aA V0) (aB V0) 475 476 (by decide) rfl]
  exact (yJ_at (aX V0) (aA V0) (aB V0) (aC V0) 476 477 (by decide) rfl).symm
/-- The contents after step 477. -/
def val478 (V0 : Valuation τ sig (Elt Ideal)) : Valuation τ sig (Elt Ideal) := after (stepOps477 (F := Ideal)) (val477 V0)
theorem val478_main_arg0 (V0 : Valuation τ sig (Elt Ideal)) : val478 V0 (Proc.devRef .tc main_arg0) = aX V0 :=
  (after_keep _ 10 stepOps477_ok main_arg0 (by decide +kernel) (val477 V0)).trans (val477_main_arg0 V0)
theorem val478_main_arg1 (V0 : Valuation τ sig (Elt Ideal)) : val478 V0 (Proc.devRef .tc main_arg1) = aA V0 :=
  (after_keep _ 10 stepOps477_ok main_arg1 (by decide +kernel) (val477 V0)).trans (val477_main_arg1 V0)
theorem val478_main_arg2 (V0 : Valuation τ sig (Elt Ideal)) : val478 V0 (Proc.devRef .tc main_arg2) = aB V0 :=
  (after_keep _ 10 stepOps477_ok main_arg2 (by decide +kernel) (val477 V0)).trans (val477_main_arg2 V0)
theorem val478_main_arg3 (V0 : Valuation τ sig (Elt Ideal)) : val478 V0 (Proc.devRef .tc main_arg3) = aC V0 :=
  (after_keep _ 10 stepOps477_ok main_arg3 (by decide +kernel) (val477 V0)).trans (val477_main_arg3 V0)
theorem val478_main_v3 (V0 : Valuation τ sig (Elt Ideal)) : val478 V0 (Proc.devRef .tc main_v3) = decay (aA V0) :=
  (after_keep _ 10 stepOps477_ok main_v3 (by decide +kernel) (val477 V0)).trans (val477_main_v3 V0)
theorem val478_h (V0 : Valuation τ sig (Elt Ideal)) : val478 V0 (Proc.devRef .tc main_v9555) = hI (aX V0) (aA V0) (aB V0) 477 := by
  refine ((step477_val (val477 V0)).1).trans ?_
  rw [val477_main_arg0 V0, val477_main_v3 V0, val477_main_arg2 V0, val477_h V0]
  exact (hI_at (aX V0) (aA V0) (aB V0) 476 477 (by decide) rfl).symm
theorem val478_y (V0 : Valuation τ sig (Elt Ideal)) : val478 V0 (Proc.devRef .tc main_v9563) = yJ (aX V0) (aA V0) (aB V0) (aC V0) 478 := by
  refine ((step477_val (val477 V0)).2).trans ?_
  rw [val477_main_arg0 V0, val477_main_v3 V0, val477_main_arg2 V0, val477_main_arg3 V0, val477_h V0, val477_y V0]
  rw [← hI_at (aX V0) (aA V0) (aB V0) 476 477 (by decide) rfl]
  exact (yJ_at (aX V0) (aA V0) (aB V0) (aC V0) 477 478 (by decide) rfl).symm
/-- The contents after step 478. -/
def val479 (V0 : Valuation τ sig (Elt Ideal)) : Valuation τ sig (Elt Ideal) := after (stepOps478 (F := Ideal)) (val478 V0)
theorem val479_main_arg0 (V0 : Valuation τ sig (Elt Ideal)) : val479 V0 (Proc.devRef .tc main_arg0) = aX V0 :=
  (after_keep _ 10 stepOps478_ok main_arg0 (by decide +kernel) (val478 V0)).trans (val478_main_arg0 V0)
theorem val479_main_arg1 (V0 : Valuation τ sig (Elt Ideal)) : val479 V0 (Proc.devRef .tc main_arg1) = aA V0 :=
  (after_keep _ 10 stepOps478_ok main_arg1 (by decide +kernel) (val478 V0)).trans (val478_main_arg1 V0)
theorem val479_main_arg2 (V0 : Valuation τ sig (Elt Ideal)) : val479 V0 (Proc.devRef .tc main_arg2) = aB V0 :=
  (after_keep _ 10 stepOps478_ok main_arg2 (by decide +kernel) (val478 V0)).trans (val478_main_arg2 V0)
theorem val479_main_arg3 (V0 : Valuation τ sig (Elt Ideal)) : val479 V0 (Proc.devRef .tc main_arg3) = aC V0 :=
  (after_keep _ 10 stepOps478_ok main_arg3 (by decide +kernel) (val478 V0)).trans (val478_main_arg3 V0)
theorem val479_main_v3 (V0 : Valuation τ sig (Elt Ideal)) : val479 V0 (Proc.devRef .tc main_v3) = decay (aA V0) :=
  (after_keep _ 10 stepOps478_ok main_v3 (by decide +kernel) (val478 V0)).trans (val478_main_v3 V0)
theorem val479_h (V0 : Valuation τ sig (Elt Ideal)) : val479 V0 (Proc.devRef .tc main_v9575) = hI (aX V0) (aA V0) (aB V0) 478 := by
  refine ((step478_val (val478 V0)).1).trans ?_
  rw [val478_main_arg0 V0, val478_main_v3 V0, val478_main_arg2 V0, val478_h V0]
  exact (hI_at (aX V0) (aA V0) (aB V0) 477 478 (by decide) rfl).symm
theorem val479_y (V0 : Valuation τ sig (Elt Ideal)) : val479 V0 (Proc.devRef .tc main_v9583) = yJ (aX V0) (aA V0) (aB V0) (aC V0) 479 := by
  refine ((step478_val (val478 V0)).2).trans ?_
  rw [val478_main_arg0 V0, val478_main_v3 V0, val478_main_arg2 V0, val478_main_arg3 V0, val478_h V0, val478_y V0]
  rw [← hI_at (aX V0) (aA V0) (aB V0) 477 478 (by decide) rfl]
  exact (yJ_at (aX V0) (aA V0) (aB V0) (aC V0) 478 479 (by decide) rfl).symm
/-- The contents after step 479. -/
def val480 (V0 : Valuation τ sig (Elt Ideal)) : Valuation τ sig (Elt Ideal) := after (stepOps479 (F := Ideal)) (val479 V0)
theorem val480_main_arg0 (V0 : Valuation τ sig (Elt Ideal)) : val480 V0 (Proc.devRef .tc main_arg0) = aX V0 :=
  (after_keep _ 10 stepOps479_ok main_arg0 (by decide +kernel) (val479 V0)).trans (val479_main_arg0 V0)
theorem val480_main_arg1 (V0 : Valuation τ sig (Elt Ideal)) : val480 V0 (Proc.devRef .tc main_arg1) = aA V0 :=
  (after_keep _ 10 stepOps479_ok main_arg1 (by decide +kernel) (val479 V0)).trans (val479_main_arg1 V0)
theorem val480_main_arg2 (V0 : Valuation τ sig (Elt Ideal)) : val480 V0 (Proc.devRef .tc main_arg2) = aB V0 :=
  (after_keep _ 10 stepOps479_ok main_arg2 (by decide +kernel) (val479 V0)).trans (val479_main_arg2 V0)
theorem val480_main_arg3 (V0 : Valuation τ sig (Elt Ideal)) : val480 V0 (Proc.devRef .tc main_arg3) = aC V0 :=
  (after_keep _ 10 stepOps479_ok main_arg3 (by decide +kernel) (val479 V0)).trans (val479_main_arg3 V0)
theorem val480_main_v3 (V0 : Valuation τ sig (Elt Ideal)) : val480 V0 (Proc.devRef .tc main_v3) = decay (aA V0) :=
  (after_keep _ 10 stepOps479_ok main_v3 (by decide +kernel) (val479 V0)).trans (val479_main_v3 V0)
theorem val480_h (V0 : Valuation τ sig (Elt Ideal)) : val480 V0 (Proc.devRef .tc main_v9595) = hI (aX V0) (aA V0) (aB V0) 479 := by
  refine ((step479_val (val479 V0)).1).trans ?_
  rw [val479_main_arg0 V0, val479_main_v3 V0, val479_main_arg2 V0, val479_h V0]
  exact (hI_at (aX V0) (aA V0) (aB V0) 478 479 (by decide) rfl).symm
theorem val480_y (V0 : Valuation τ sig (Elt Ideal)) : val480 V0 (Proc.devRef .tc main_v9603) = yJ (aX V0) (aA V0) (aB V0) (aC V0) 480 := by
  refine ((step479_val (val479 V0)).2).trans ?_
  rw [val479_main_arg0 V0, val479_main_v3 V0, val479_main_arg2 V0, val479_main_arg3 V0, val479_h V0, val479_y V0]
  rw [← hI_at (aX V0) (aA V0) (aB V0) 478 479 (by decide) rfl]
  exact (yJ_at (aX V0) (aA V0) (aB V0) (aC V0) 479 480 (by decide) rfl).symm
/-- The contents after step 480. -/
def val481 (V0 : Valuation τ sig (Elt Ideal)) : Valuation τ sig (Elt Ideal) := after (stepOps480 (F := Ideal)) (val480 V0)
theorem val481_main_arg0 (V0 : Valuation τ sig (Elt Ideal)) : val481 V0 (Proc.devRef .tc main_arg0) = aX V0 :=
  (after_keep _ 10 stepOps480_ok main_arg0 (by decide +kernel) (val480 V0)).trans (val480_main_arg0 V0)
theorem val481_main_arg1 (V0 : Valuation τ sig (Elt Ideal)) : val481 V0 (Proc.devRef .tc main_arg1) = aA V0 :=
  (after_keep _ 10 stepOps480_ok main_arg1 (by decide +kernel) (val480 V0)).trans (val480_main_arg1 V0)
theorem val481_main_arg2 (V0 : Valuation τ sig (Elt Ideal)) : val481 V0 (Proc.devRef .tc main_arg2) = aB V0 :=
  (after_keep _ 10 stepOps480_ok main_arg2 (by decide +kernel) (val480 V0)).trans (val480_main_arg2 V0)
theorem val481_main_arg3 (V0 : Valuation τ sig (Elt Ideal)) : val481 V0 (Proc.devRef .tc main_arg3) = aC V0 :=
  (after_keep _ 10 stepOps480_ok main_arg3 (by decide +kernel) (val480 V0)).trans (val480_main_arg3 V0)
theorem val481_main_v3 (V0 : Valuation τ sig (Elt Ideal)) : val481 V0 (Proc.devRef .tc main_v3) = decay (aA V0) :=
  (after_keep _ 10 stepOps480_ok main_v3 (by decide +kernel) (val480 V0)).trans (val480_main_v3 V0)
theorem val481_h (V0 : Valuation τ sig (Elt Ideal)) : val481 V0 (Proc.devRef .tc main_v9615) = hI (aX V0) (aA V0) (aB V0) 480 := by
  refine ((step480_val (val480 V0)).1).trans ?_
  rw [val480_main_arg0 V0, val480_main_v3 V0, val480_main_arg2 V0, val480_h V0]
  exact (hI_at (aX V0) (aA V0) (aB V0) 479 480 (by decide) rfl).symm
theorem val481_y (V0 : Valuation τ sig (Elt Ideal)) : val481 V0 (Proc.devRef .tc main_v9623) = yJ (aX V0) (aA V0) (aB V0) (aC V0) 481 := by
  refine ((step480_val (val480 V0)).2).trans ?_
  rw [val480_main_arg0 V0, val480_main_v3 V0, val480_main_arg2 V0, val480_main_arg3 V0, val480_h V0, val480_y V0]
  rw [← hI_at (aX V0) (aA V0) (aB V0) 479 480 (by decide) rfl]
  exact (yJ_at (aX V0) (aA V0) (aB V0) (aC V0) 480 481 (by decide) rfl).symm
/-- The contents after step 481. -/
def val482 (V0 : Valuation τ sig (Elt Ideal)) : Valuation τ sig (Elt Ideal) := after (stepOps481 (F := Ideal)) (val481 V0)
theorem val482_main_arg0 (V0 : Valuation τ sig (Elt Ideal)) : val482 V0 (Proc.devRef .tc main_arg0) = aX V0 :=
  (after_keep _ 10 stepOps481_ok main_arg0 (by decide +kernel) (val481 V0)).trans (val481_main_arg0 V0)
theorem val482_main_arg1 (V0 : Valuation τ sig (Elt Ideal)) : val482 V0 (Proc.devRef .tc main_arg1) = aA V0 :=
  (after_keep _ 10 stepOps481_ok main_arg1 (by decide +kernel) (val481 V0)).trans (val481_main_arg1 V0)
theorem val482_main_arg2 (V0 : Valuation τ sig (Elt Ideal)) : val482 V0 (Proc.devRef .tc main_arg2) = aB V0 :=
  (after_keep _ 10 stepOps481_ok main_arg2 (by decide +kernel) (val481 V0)).trans (val481_main_arg2 V0)
theorem val482_main_arg3 (V0 : Valuation τ sig (Elt Ideal)) : val482 V0 (Proc.devRef .tc main_arg3) = aC V0 :=
  (after_keep _ 10 stepOps481_ok main_arg3 (by decide +kernel) (val481 V0)).trans (val481_main_arg3 V0)
theorem val482_main_v3 (V0 : Valuation τ sig (Elt Ideal)) : val482 V0 (Proc.devRef .tc main_v3) = decay (aA V0) :=
  (after_keep _ 10 stepOps481_ok main_v3 (by decide +kernel) (val481 V0)).trans (val481_main_v3 V0)
theorem val482_h (V0 : Valuation τ sig (Elt Ideal)) : val482 V0 (Proc.devRef .tc main_v9635) = hI (aX V0) (aA V0) (aB V0) 481 := by
  refine ((step481_val (val481 V0)).1).trans ?_
  rw [val481_main_arg0 V0, val481_main_v3 V0, val481_main_arg2 V0, val481_h V0]
  exact (hI_at (aX V0) (aA V0) (aB V0) 480 481 (by decide) rfl).symm
theorem val482_y (V0 : Valuation τ sig (Elt Ideal)) : val482 V0 (Proc.devRef .tc main_v9643) = yJ (aX V0) (aA V0) (aB V0) (aC V0) 482 := by
  refine ((step481_val (val481 V0)).2).trans ?_
  rw [val481_main_arg0 V0, val481_main_v3 V0, val481_main_arg2 V0, val481_main_arg3 V0, val481_h V0, val481_y V0]
  rw [← hI_at (aX V0) (aA V0) (aB V0) 480 481 (by decide) rfl]
  exact (yJ_at (aX V0) (aA V0) (aB V0) (aC V0) 481 482 (by decide) rfl).symm
/-- The contents after step 482. -/
def val483 (V0 : Valuation τ sig (Elt Ideal)) : Valuation τ sig (Elt Ideal) := after (stepOps482 (F := Ideal)) (val482 V0)
theorem val483_main_arg0 (V0 : Valuation τ sig (Elt Ideal)) : val483 V0 (Proc.devRef .tc main_arg0) = aX V0 :=
  (after_keep _ 10 stepOps482_ok main_arg0 (by decide +kernel) (val482 V0)).trans (val482_main_arg0 V0)
theorem val483_main_arg1 (V0 : Valuation τ sig (Elt Ideal)) : val483 V0 (Proc.devRef .tc main_arg1) = aA V0 :=
  (after_keep _ 10 stepOps482_ok main_arg1 (by decide +kernel) (val482 V0)).trans (val482_main_arg1 V0)
theorem val483_main_arg2 (V0 : Valuation τ sig (Elt Ideal)) : val483 V0 (Proc.devRef .tc main_arg2) = aB V0 :=
  (after_keep _ 10 stepOps482_ok main_arg2 (by decide +kernel) (val482 V0)).trans (val482_main_arg2 V0)
theorem val483_main_arg3 (V0 : Valuation τ sig (Elt Ideal)) : val483 V0 (Proc.devRef .tc main_arg3) = aC V0 :=
  (after_keep _ 10 stepOps482_ok main_arg3 (by decide +kernel) (val482 V0)).trans (val482_main_arg3 V0)
theorem val483_main_v3 (V0 : Valuation τ sig (Elt Ideal)) : val483 V0 (Proc.devRef .tc main_v3) = decay (aA V0) :=
  (after_keep _ 10 stepOps482_ok main_v3 (by decide +kernel) (val482 V0)).trans (val482_main_v3 V0)
theorem val483_h (V0 : Valuation τ sig (Elt Ideal)) : val483 V0 (Proc.devRef .tc main_v9655) = hI (aX V0) (aA V0) (aB V0) 482 := by
  refine ((step482_val (val482 V0)).1).trans ?_
  rw [val482_main_arg0 V0, val482_main_v3 V0, val482_main_arg2 V0, val482_h V0]
  exact (hI_at (aX V0) (aA V0) (aB V0) 481 482 (by decide) rfl).symm
theorem val483_y (V0 : Valuation τ sig (Elt Ideal)) : val483 V0 (Proc.devRef .tc main_v9663) = yJ (aX V0) (aA V0) (aB V0) (aC V0) 483 := by
  refine ((step482_val (val482 V0)).2).trans ?_
  rw [val482_main_arg0 V0, val482_main_v3 V0, val482_main_arg2 V0, val482_main_arg3 V0, val482_h V0, val482_y V0]
  rw [← hI_at (aX V0) (aA V0) (aB V0) 481 482 (by decide) rfl]
  exact (yJ_at (aX V0) (aA V0) (aB V0) (aC V0) 482 483 (by decide) rfl).symm
/-- The contents after step 483. -/
def val484 (V0 : Valuation τ sig (Elt Ideal)) : Valuation τ sig (Elt Ideal) := after (stepOps483 (F := Ideal)) (val483 V0)
theorem val484_main_arg0 (V0 : Valuation τ sig (Elt Ideal)) : val484 V0 (Proc.devRef .tc main_arg0) = aX V0 :=
  (after_keep _ 10 stepOps483_ok main_arg0 (by decide +kernel) (val483 V0)).trans (val483_main_arg0 V0)
theorem val484_main_arg1 (V0 : Valuation τ sig (Elt Ideal)) : val484 V0 (Proc.devRef .tc main_arg1) = aA V0 :=
  (after_keep _ 10 stepOps483_ok main_arg1 (by decide +kernel) (val483 V0)).trans (val483_main_arg1 V0)
theorem val484_main_arg2 (V0 : Valuation τ sig (Elt Ideal)) : val484 V0 (Proc.devRef .tc main_arg2) = aB V0 :=
  (after_keep _ 10 stepOps483_ok main_arg2 (by decide +kernel) (val483 V0)).trans (val483_main_arg2 V0)
theorem val484_main_arg3 (V0 : Valuation τ sig (Elt Ideal)) : val484 V0 (Proc.devRef .tc main_arg3) = aC V0 :=
  (after_keep _ 10 stepOps483_ok main_arg3 (by decide +kernel) (val483 V0)).trans (val483_main_arg3 V0)
theorem val484_main_v3 (V0 : Valuation τ sig (Elt Ideal)) : val484 V0 (Proc.devRef .tc main_v3) = decay (aA V0) :=
  (after_keep _ 10 stepOps483_ok main_v3 (by decide +kernel) (val483 V0)).trans (val483_main_v3 V0)
theorem val484_h (V0 : Valuation τ sig (Elt Ideal)) : val484 V0 (Proc.devRef .tc main_v9675) = hI (aX V0) (aA V0) (aB V0) 483 := by
  refine ((step483_val (val483 V0)).1).trans ?_
  rw [val483_main_arg0 V0, val483_main_v3 V0, val483_main_arg2 V0, val483_h V0]
  exact (hI_at (aX V0) (aA V0) (aB V0) 482 483 (by decide) rfl).symm
theorem val484_y (V0 : Valuation τ sig (Elt Ideal)) : val484 V0 (Proc.devRef .tc main_v9683) = yJ (aX V0) (aA V0) (aB V0) (aC V0) 484 := by
  refine ((step483_val (val483 V0)).2).trans ?_
  rw [val483_main_arg0 V0, val483_main_v3 V0, val483_main_arg2 V0, val483_main_arg3 V0, val483_h V0, val483_y V0]
  rw [← hI_at (aX V0) (aA V0) (aB V0) 482 483 (by decide) rfl]
  exact (yJ_at (aX V0) (aA V0) (aB V0) (aC V0) 483 484 (by decide) rfl).symm
/-- The contents after step 484. -/
def val485 (V0 : Valuation τ sig (Elt Ideal)) : Valuation τ sig (Elt Ideal) := after (stepOps484 (F := Ideal)) (val484 V0)
theorem val485_main_arg0 (V0 : Valuation τ sig (Elt Ideal)) : val485 V0 (Proc.devRef .tc main_arg0) = aX V0 :=
  (after_keep _ 10 stepOps484_ok main_arg0 (by decide +kernel) (val484 V0)).trans (val484_main_arg0 V0)
theorem val485_main_arg1 (V0 : Valuation τ sig (Elt Ideal)) : val485 V0 (Proc.devRef .tc main_arg1) = aA V0 :=
  (after_keep _ 10 stepOps484_ok main_arg1 (by decide +kernel) (val484 V0)).trans (val484_main_arg1 V0)
theorem val485_main_arg2 (V0 : Valuation τ sig (Elt Ideal)) : val485 V0 (Proc.devRef .tc main_arg2) = aB V0 :=
  (after_keep _ 10 stepOps484_ok main_arg2 (by decide +kernel) (val484 V0)).trans (val484_main_arg2 V0)
theorem val485_main_arg3 (V0 : Valuation τ sig (Elt Ideal)) : val485 V0 (Proc.devRef .tc main_arg3) = aC V0 :=
  (after_keep _ 10 stepOps484_ok main_arg3 (by decide +kernel) (val484 V0)).trans (val484_main_arg3 V0)
theorem val485_main_v3 (V0 : Valuation τ sig (Elt Ideal)) : val485 V0 (Proc.devRef .tc main_v3) = decay (aA V0) :=
  (after_keep _ 10 stepOps484_ok main_v3 (by decide +kernel) (val484 V0)).trans (val484_main_v3 V0)
theorem val485_h (V0 : Valuation τ sig (Elt Ideal)) : val485 V0 (Proc.devRef .tc main_v9695) = hI (aX V0) (aA V0) (aB V0) 484 := by
  refine ((step484_val (val484 V0)).1).trans ?_
  rw [val484_main_arg0 V0, val484_main_v3 V0, val484_main_arg2 V0, val484_h V0]
  exact (hI_at (aX V0) (aA V0) (aB V0) 483 484 (by decide) rfl).symm
theorem val485_y (V0 : Valuation τ sig (Elt Ideal)) : val485 V0 (Proc.devRef .tc main_v9703) = yJ (aX V0) (aA V0) (aB V0) (aC V0) 485 := by
  refine ((step484_val (val484 V0)).2).trans ?_
  rw [val484_main_arg0 V0, val484_main_v3 V0, val484_main_arg2 V0, val484_main_arg3 V0, val484_h V0, val484_y V0]
  rw [← hI_at (aX V0) (aA V0) (aB V0) 483 484 (by decide) rfl]
  exact (yJ_at (aX V0) (aA V0) (aB V0) (aC V0) 484 485 (by decide) rfl).symm
/-- The contents after step 485. -/
def val486 (V0 : Valuation τ sig (Elt Ideal)) : Valuation τ sig (Elt Ideal) := after (stepOps485 (F := Ideal)) (val485 V0)
theorem val486_main_arg0 (V0 : Valuation τ sig (Elt Ideal)) : val486 V0 (Proc.devRef .tc main_arg0) = aX V0 :=
  (after_keep _ 10 stepOps485_ok main_arg0 (by decide +kernel) (val485 V0)).trans (val485_main_arg0 V0)
theorem val486_main_arg1 (V0 : Valuation τ sig (Elt Ideal)) : val486 V0 (Proc.devRef .tc main_arg1) = aA V0 :=
  (after_keep _ 10 stepOps485_ok main_arg1 (by decide +kernel) (val485 V0)).trans (val485_main_arg1 V0)
theorem val486_main_arg2 (V0 : Valuation τ sig (Elt Ideal)) : val486 V0 (Proc.devRef .tc main_arg2) = aB V0 :=
  (after_keep _ 10 stepOps485_ok main_arg2 (by decide +kernel) (val485 V0)).trans (val485_main_arg2 V0)
theorem val486_main_arg3 (V0 : Valuation τ sig (Elt Ideal)) : val486 V0 (Proc.devRef .tc main_arg3) = aC V0 :=
  (after_keep _ 10 stepOps485_ok main_arg3 (by decide +kernel) (val485 V0)).trans (val485_main_arg3 V0)
theorem val486_main_v3 (V0 : Valuation τ sig (Elt Ideal)) : val486 V0 (Proc.devRef .tc main_v3) = decay (aA V0) :=
  (after_keep _ 10 stepOps485_ok main_v3 (by decide +kernel) (val485 V0)).trans (val485_main_v3 V0)
theorem val486_h (V0 : Valuation τ sig (Elt Ideal)) : val486 V0 (Proc.devRef .tc main_v9715) = hI (aX V0) (aA V0) (aB V0) 485 := by
  refine ((step485_val (val485 V0)).1).trans ?_
  rw [val485_main_arg0 V0, val485_main_v3 V0, val485_main_arg2 V0, val485_h V0]
  exact (hI_at (aX V0) (aA V0) (aB V0) 484 485 (by decide) rfl).symm
theorem val486_y (V0 : Valuation τ sig (Elt Ideal)) : val486 V0 (Proc.devRef .tc main_v9723) = yJ (aX V0) (aA V0) (aB V0) (aC V0) 486 := by
  refine ((step485_val (val485 V0)).2).trans ?_
  rw [val485_main_arg0 V0, val485_main_v3 V0, val485_main_arg2 V0, val485_main_arg3 V0, val485_h V0, val485_y V0]
  rw [← hI_at (aX V0) (aA V0) (aB V0) 484 485 (by decide) rfl]
  exact (yJ_at (aX V0) (aA V0) (aB V0) (aC V0) 485 486 (by decide) rfl).symm
/-- The contents after step 486. -/
def val487 (V0 : Valuation τ sig (Elt Ideal)) : Valuation τ sig (Elt Ideal) := after (stepOps486 (F := Ideal)) (val486 V0)
theorem val487_main_arg0 (V0 : Valuation τ sig (Elt Ideal)) : val487 V0 (Proc.devRef .tc main_arg0) = aX V0 :=
  (after_keep _ 10 stepOps486_ok main_arg0 (by decide +kernel) (val486 V0)).trans (val486_main_arg0 V0)
theorem val487_main_arg1 (V0 : Valuation τ sig (Elt Ideal)) : val487 V0 (Proc.devRef .tc main_arg1) = aA V0 :=
  (after_keep _ 10 stepOps486_ok main_arg1 (by decide +kernel) (val486 V0)).trans (val486_main_arg1 V0)
theorem val487_main_arg2 (V0 : Valuation τ sig (Elt Ideal)) : val487 V0 (Proc.devRef .tc main_arg2) = aB V0 :=
  (after_keep _ 10 stepOps486_ok main_arg2 (by decide +kernel) (val486 V0)).trans (val486_main_arg2 V0)
theorem val487_main_arg3 (V0 : Valuation τ sig (Elt Ideal)) : val487 V0 (Proc.devRef .tc main_arg3) = aC V0 :=
  (after_keep _ 10 stepOps486_ok main_arg3 (by decide +kernel) (val486 V0)).trans (val486_main_arg3 V0)
theorem val487_main_v3 (V0 : Valuation τ sig (Elt Ideal)) : val487 V0 (Proc.devRef .tc main_v3) = decay (aA V0) :=
  (after_keep _ 10 stepOps486_ok main_v3 (by decide +kernel) (val486 V0)).trans (val486_main_v3 V0)
theorem val487_h (V0 : Valuation τ sig (Elt Ideal)) : val487 V0 (Proc.devRef .tc main_v9735) = hI (aX V0) (aA V0) (aB V0) 486 := by
  refine ((step486_val (val486 V0)).1).trans ?_
  rw [val486_main_arg0 V0, val486_main_v3 V0, val486_main_arg2 V0, val486_h V0]
  exact (hI_at (aX V0) (aA V0) (aB V0) 485 486 (by decide) rfl).symm
theorem val487_y (V0 : Valuation τ sig (Elt Ideal)) : val487 V0 (Proc.devRef .tc main_v9743) = yJ (aX V0) (aA V0) (aB V0) (aC V0) 487 := by
  refine ((step486_val (val486 V0)).2).trans ?_
  rw [val486_main_arg0 V0, val486_main_v3 V0, val486_main_arg2 V0, val486_main_arg3 V0, val486_h V0, val486_y V0]
  rw [← hI_at (aX V0) (aA V0) (aB V0) 485 486 (by decide) rfl]
  exact (yJ_at (aX V0) (aA V0) (aB V0) (aC V0) 486 487 (by decide) rfl).symm
/-- The contents after step 487. -/
def val488 (V0 : Valuation τ sig (Elt Ideal)) : Valuation τ sig (Elt Ideal) := after (stepOps487 (F := Ideal)) (val487 V0)
theorem val488_main_arg0 (V0 : Valuation τ sig (Elt Ideal)) : val488 V0 (Proc.devRef .tc main_arg0) = aX V0 :=
  (after_keep _ 10 stepOps487_ok main_arg0 (by decide +kernel) (val487 V0)).trans (val487_main_arg0 V0)
theorem val488_main_arg1 (V0 : Valuation τ sig (Elt Ideal)) : val488 V0 (Proc.devRef .tc main_arg1) = aA V0 :=
  (after_keep _ 10 stepOps487_ok main_arg1 (by decide +kernel) (val487 V0)).trans (val487_main_arg1 V0)
theorem val488_main_arg2 (V0 : Valuation τ sig (Elt Ideal)) : val488 V0 (Proc.devRef .tc main_arg2) = aB V0 :=
  (after_keep _ 10 stepOps487_ok main_arg2 (by decide +kernel) (val487 V0)).trans (val487_main_arg2 V0)
theorem val488_main_arg3 (V0 : Valuation τ sig (Elt Ideal)) : val488 V0 (Proc.devRef .tc main_arg3) = aC V0 :=
  (after_keep _ 10 stepOps487_ok main_arg3 (by decide +kernel) (val487 V0)).trans (val487_main_arg3 V0)
theorem val488_main_v3 (V0 : Valuation τ sig (Elt Ideal)) : val488 V0 (Proc.devRef .tc main_v3) = decay (aA V0) :=
  (after_keep _ 10 stepOps487_ok main_v3 (by decide +kernel) (val487 V0)).trans (val487_main_v3 V0)
theorem val488_h (V0 : Valuation τ sig (Elt Ideal)) : val488 V0 (Proc.devRef .tc main_v9755) = hI (aX V0) (aA V0) (aB V0) 487 := by
  refine ((step487_val (val487 V0)).1).trans ?_
  rw [val487_main_arg0 V0, val487_main_v3 V0, val487_main_arg2 V0, val487_h V0]
  exact (hI_at (aX V0) (aA V0) (aB V0) 486 487 (by decide) rfl).symm
theorem val488_y (V0 : Valuation τ sig (Elt Ideal)) : val488 V0 (Proc.devRef .tc main_v9763) = yJ (aX V0) (aA V0) (aB V0) (aC V0) 488 := by
  refine ((step487_val (val487 V0)).2).trans ?_
  rw [val487_main_arg0 V0, val487_main_v3 V0, val487_main_arg2 V0, val487_main_arg3 V0, val487_h V0, val487_y V0]
  rw [← hI_at (aX V0) (aA V0) (aB V0) 486 487 (by decide) rfl]
  exact (yJ_at (aX V0) (aA V0) (aB V0) (aC V0) 487 488 (by decide) rfl).symm
/-- The contents after step 488. -/
def val489 (V0 : Valuation τ sig (Elt Ideal)) : Valuation τ sig (Elt Ideal) := after (stepOps488 (F := Ideal)) (val488 V0)
theorem val489_main_arg0 (V0 : Valuation τ sig (Elt Ideal)) : val489 V0 (Proc.devRef .tc main_arg0) = aX V0 :=
  (after_keep _ 10 stepOps488_ok main_arg0 (by decide +kernel) (val488 V0)).trans (val488_main_arg0 V0)
theorem val489_main_arg1 (V0 : Valuation τ sig (Elt Ideal)) : val489 V0 (Proc.devRef .tc main_arg1) = aA V0 :=
  (after_keep _ 10 stepOps488_ok main_arg1 (by decide +kernel) (val488 V0)).trans (val488_main_arg1 V0)
theorem val489_main_arg2 (V0 : Valuation τ sig (Elt Ideal)) : val489 V0 (Proc.devRef .tc main_arg2) = aB V0 :=
  (after_keep _ 10 stepOps488_ok main_arg2 (by decide +kernel) (val488 V0)).trans (val488_main_arg2 V0)
theorem val489_main_arg3 (V0 : Valuation τ sig (Elt Ideal)) : val489 V0 (Proc.devRef .tc main_arg3) = aC V0 :=
  (after_keep _ 10 stepOps488_ok main_arg3 (by decide +kernel) (val488 V0)).trans (val488_main_arg3 V0)
theorem val489_main_v3 (V0 : Valuation τ sig (Elt Ideal)) : val489 V0 (Proc.devRef .tc main_v3) = decay (aA V0) :=
  (after_keep _ 10 stepOps488_ok main_v3 (by decide +kernel) (val488 V0)).trans (val488_main_v3 V0)
theorem val489_h (V0 : Valuation τ sig (Elt Ideal)) : val489 V0 (Proc.devRef .tc main_v9775) = hI (aX V0) (aA V0) (aB V0) 488 := by
  refine ((step488_val (val488 V0)).1).trans ?_
  rw [val488_main_arg0 V0, val488_main_v3 V0, val488_main_arg2 V0, val488_h V0]
  exact (hI_at (aX V0) (aA V0) (aB V0) 487 488 (by decide) rfl).symm
theorem val489_y (V0 : Valuation τ sig (Elt Ideal)) : val489 V0 (Proc.devRef .tc main_v9783) = yJ (aX V0) (aA V0) (aB V0) (aC V0) 489 := by
  refine ((step488_val (val488 V0)).2).trans ?_
  rw [val488_main_arg0 V0, val488_main_v3 V0, val488_main_arg2 V0, val488_main_arg3 V0, val488_h V0, val488_y V0]
  rw [← hI_at (aX V0) (aA V0) (aB V0) 487 488 (by decide) rfl]
  exact (yJ_at (aX V0) (aA V0) (aB V0) (aC V0) 488 489 (by decide) rfl).symm
/-- The contents after step 489. -/
def val490 (V0 : Valuation τ sig (Elt Ideal)) : Valuation τ sig (Elt Ideal) := after (stepOps489 (F := Ideal)) (val489 V0)
theorem val490_main_arg0 (V0 : Valuation τ sig (Elt Ideal)) : val490 V0 (Proc.devRef .tc main_arg0) = aX V0 :=
  (after_keep _ 10 stepOps489_ok main_arg0 (by decide +kernel) (val489 V0)).trans (val489_main_arg0 V0)
theorem val490_main_arg1 (V0 : Valuation τ sig (Elt Ideal)) : val490 V0 (Proc.devRef .tc main_arg1) = aA V0 :=
  (after_keep _ 10 stepOps489_ok main_arg1 (by decide +kernel) (val489 V0)).trans (val489_main_arg1 V0)
theorem val490_main_arg2 (V0 : Valuation τ sig (Elt Ideal)) : val490 V0 (Proc.devRef .tc main_arg2) = aB V0 :=
  (after_keep _ 10 stepOps489_ok main_arg2 (by decide +kernel) (val489 V0)).trans (val489_main_arg2 V0)
theorem val490_main_arg3 (V0 : Valuation τ sig (Elt Ideal)) : val490 V0 (Proc.devRef .tc main_arg3) = aC V0 :=
  (after_keep _ 10 stepOps489_ok main_arg3 (by decide +kernel) (val489 V0)).trans (val489_main_arg3 V0)
theorem val490_main_v3 (V0 : Valuation τ sig (Elt Ideal)) : val490 V0 (Proc.devRef .tc main_v3) = decay (aA V0) :=
  (after_keep _ 10 stepOps489_ok main_v3 (by decide +kernel) (val489 V0)).trans (val489_main_v3 V0)
theorem val490_h (V0 : Valuation τ sig (Elt Ideal)) : val490 V0 (Proc.devRef .tc main_v9795) = hI (aX V0) (aA V0) (aB V0) 489 := by
  refine ((step489_val (val489 V0)).1).trans ?_
  rw [val489_main_arg0 V0, val489_main_v3 V0, val489_main_arg2 V0, val489_h V0]
  exact (hI_at (aX V0) (aA V0) (aB V0) 488 489 (by decide) rfl).symm
theorem val490_y (V0 : Valuation τ sig (Elt Ideal)) : val490 V0 (Proc.devRef .tc main_v9803) = yJ (aX V0) (aA V0) (aB V0) (aC V0) 490 := by
  refine ((step489_val (val489 V0)).2).trans ?_
  rw [val489_main_arg0 V0, val489_main_v3 V0, val489_main_arg2 V0, val489_main_arg3 V0, val489_h V0, val489_y V0]
  rw [← hI_at (aX V0) (aA V0) (aB V0) 488 489 (by decide) rfl]
  exact (yJ_at (aX V0) (aA V0) (aB V0) (aC V0) 489 490 (by decide) rfl).symm
/-- The contents after step 490. -/
def val491 (V0 : Valuation τ sig (Elt Ideal)) : Valuation τ sig (Elt Ideal) := after (stepOps490 (F := Ideal)) (val490 V0)
theorem val491_main_arg0 (V0 : Valuation τ sig (Elt Ideal)) : val491 V0 (Proc.devRef .tc main_arg0) = aX V0 :=
  (after_keep _ 10 stepOps490_ok main_arg0 (by decide +kernel) (val490 V0)).trans (val490_main_arg0 V0)
theorem val491_main_arg1 (V0 : Valuation τ sig (Elt Ideal)) : val491 V0 (Proc.devRef .tc main_arg1) = aA V0 :=
  (after_keep _ 10 stepOps490_ok main_arg1 (by decide +kernel) (val490 V0)).trans (val490_main_arg1 V0)
theorem val491_main_arg2 (V0 : Valuation τ sig (Elt Ideal)) : val491 V0 (Proc.devRef .tc main_arg2) = aB V0 :=
  (after_keep _ 10 stepOps490_ok main_arg2 (by decide +kernel) (val490 V0)).trans (val490_main_arg2 V0)
theorem val491_main_arg3 (V0 : Valuation τ sig (Elt Ideal)) : val491 V0 (Proc.devRef .tc main_arg3) = aC V0 :=
  (after_keep _ 10 stepOps490_ok main_arg3 (by decide +kernel) (val490 V0)).trans (val490_main_arg3 V0)
theorem val491_main_v3 (V0 : Valuation τ sig (Elt Ideal)) : val491 V0 (Proc.devRef .tc main_v3) = decay (aA V0) :=
  (after_keep _ 10 stepOps490_ok main_v3 (by decide +kernel) (val490 V0)).trans (val490_main_v3 V0)
theorem val491_h (V0 : Valuation τ sig (Elt Ideal)) : val491 V0 (Proc.devRef .tc main_v9815) = hI (aX V0) (aA V0) (aB V0) 490 := by
  refine ((step490_val (val490 V0)).1).trans ?_
  rw [val490_main_arg0 V0, val490_main_v3 V0, val490_main_arg2 V0, val490_h V0]
  exact (hI_at (aX V0) (aA V0) (aB V0) 489 490 (by decide) rfl).symm
theorem val491_y (V0 : Valuation τ sig (Elt Ideal)) : val491 V0 (Proc.devRef .tc main_v9823) = yJ (aX V0) (aA V0) (aB V0) (aC V0) 491 := by
  refine ((step490_val (val490 V0)).2).trans ?_
  rw [val490_main_arg0 V0, val490_main_v3 V0, val490_main_arg2 V0, val490_main_arg3 V0, val490_h V0, val490_y V0]
  rw [← hI_at (aX V0) (aA V0) (aB V0) 489 490 (by decide) rfl]
  exact (yJ_at (aX V0) (aA V0) (aB V0) (aC V0) 490 491 (by decide) rfl).symm
/-- The contents after step 491. -/
def val492 (V0 : Valuation τ sig (Elt Ideal)) : Valuation τ sig (Elt Ideal) := after (stepOps491 (F := Ideal)) (val491 V0)
theorem val492_main_arg0 (V0 : Valuation τ sig (Elt Ideal)) : val492 V0 (Proc.devRef .tc main_arg0) = aX V0 :=
  (after_keep _ 10 stepOps491_ok main_arg0 (by decide +kernel) (val491 V0)).trans (val491_main_arg0 V0)
theorem val492_main_arg1 (V0 : Valuation τ sig (Elt Ideal)) : val492 V0 (Proc.devRef .tc main_arg1) = aA V0 :=
  (after_keep _ 10 stepOps491_ok main_arg1 (by decide +kernel) (val491 V0)).trans (val491_main_arg1 V0)
theorem val492_main_arg2 (V0 : Valuation τ sig (Elt Ideal)) : val492 V0 (Proc.devRef .tc main_arg2) = aB V0 :=
  (after_keep _ 10 stepOps491_ok main_arg2 (by decide +kernel) (val491 V0)).trans (val491_main_arg2 V0)
theorem val492_main_arg3 (V0 : Valuation τ sig (Elt Ideal)) : val492 V0 (Proc.devRef .tc main_arg3) = aC V0 :=
  (after_keep _ 10 stepOps491_ok main_arg3 (by decide +kernel) (val491 V0)).trans (val491_main_arg3 V0)
theorem val492_main_v3 (V0 : Valuation τ sig (Elt Ideal)) : val492 V0 (Proc.devRef .tc main_v3) = decay (aA V0) :=
  (after_keep _ 10 stepOps491_ok main_v3 (by decide +kernel) (val491 V0)).trans (val491_main_v3 V0)
theorem val492_h (V0 : Valuation τ sig (Elt Ideal)) : val492 V0 (Proc.devRef .tc main_v9835) = hI (aX V0) (aA V0) (aB V0) 491 := by
  refine ((step491_val (val491 V0)).1).trans ?_
  rw [val491_main_arg0 V0, val491_main_v3 V0, val491_main_arg2 V0, val491_h V0]
  exact (hI_at (aX V0) (aA V0) (aB V0) 490 491 (by decide) rfl).symm
theorem val492_y (V0 : Valuation τ sig (Elt Ideal)) : val492 V0 (Proc.devRef .tc main_v9843) = yJ (aX V0) (aA V0) (aB V0) (aC V0) 492 := by
  refine ((step491_val (val491 V0)).2).trans ?_
  rw [val491_main_arg0 V0, val491_main_v3 V0, val491_main_arg2 V0, val491_main_arg3 V0, val491_h V0, val491_y V0]
  rw [← hI_at (aX V0) (aA V0) (aB V0) 490 491 (by decide) rfl]
  exact (yJ_at (aX V0) (aA V0) (aB V0) (aC V0) 491 492 (by decide) rfl).symm
/-- The contents after step 492. -/
def val493 (V0 : Valuation τ sig (Elt Ideal)) : Valuation τ sig (Elt Ideal) := after (stepOps492 (F := Ideal)) (val492 V0)
theorem val493_main_arg0 (V0 : Valuation τ sig (Elt Ideal)) : val493 V0 (Proc.devRef .tc main_arg0) = aX V0 :=
  (after_keep _ 10 stepOps492_ok main_arg0 (by decide +kernel) (val492 V0)).trans (val492_main_arg0 V0)
theorem val493_main_arg1 (V0 : Valuation τ sig (Elt Ideal)) : val493 V0 (Proc.devRef .tc main_arg1) = aA V0 :=
  (after_keep _ 10 stepOps492_ok main_arg1 (by decide +kernel) (val492 V0)).trans (val492_main_arg1 V0)
theorem val493_main_arg2 (V0 : Valuation τ sig (Elt Ideal)) : val493 V0 (Proc.devRef .tc main_arg2) = aB V0 :=
  (after_keep _ 10 stepOps492_ok main_arg2 (by decide +kernel) (val492 V0)).trans (val492_main_arg2 V0)
theorem val493_main_arg3 (V0 : Valuation τ sig (Elt Ideal)) : val493 V0 (Proc.devRef .tc main_arg3) = aC V0 :=
  (after_keep _ 10 stepOps492_ok main_arg3 (by decide +kernel) (val492 V0)).trans (val492_main_arg3 V0)
theorem val493_main_v3 (V0 : Valuation τ sig (Elt Ideal)) : val493 V0 (Proc.devRef .tc main_v3) = decay (aA V0) :=
  (after_keep _ 10 stepOps492_ok main_v3 (by decide +kernel) (val492 V0)).trans (val492_main_v3 V0)
theorem val493_h (V0 : Valuation τ sig (Elt Ideal)) : val493 V0 (Proc.devRef .tc main_v9855) = hI (aX V0) (aA V0) (aB V0) 492 := by
  refine ((step492_val (val492 V0)).1).trans ?_
  rw [val492_main_arg0 V0, val492_main_v3 V0, val492_main_arg2 V0, val492_h V0]
  exact (hI_at (aX V0) (aA V0) (aB V0) 491 492 (by decide) rfl).symm
theorem val493_y (V0 : Valuation τ sig (Elt Ideal)) : val493 V0 (Proc.devRef .tc main_v9863) = yJ (aX V0) (aA V0) (aB V0) (aC V0) 493 := by
  refine ((step492_val (val492 V0)).2).trans ?_
  rw [val492_main_arg0 V0, val492_main_v3 V0, val492_main_arg2 V0, val492_main_arg3 V0, val492_h V0, val492_y V0]
  rw [← hI_at (aX V0) (aA V0) (aB V0) 491 492 (by decide) rfl]
  exact (yJ_at (aX V0) (aA V0) (aB V0) (aC V0) 492 493 (by decide) rfl).symm
/-- The contents after step 493. -/
def val494 (V0 : Valuation τ sig (Elt Ideal)) : Valuation τ sig (Elt Ideal) := after (stepOps493 (F := Ideal)) (val493 V0)
theorem val494_main_arg0 (V0 : Valuation τ sig (Elt Ideal)) : val494 V0 (Proc.devRef .tc main_arg0) = aX V0 :=
  (after_keep _ 10 stepOps493_ok main_arg0 (by decide +kernel) (val493 V0)).trans (val493_main_arg0 V0)
theorem val494_main_arg1 (V0 : Valuation τ sig (Elt Ideal)) : val494 V0 (Proc.devRef .tc main_arg1) = aA V0 :=
  (after_keep _ 10 stepOps493_ok main_arg1 (by decide +kernel) (val493 V0)).trans (val493_main_arg1 V0)
theorem val494_main_arg2 (V0 : Valuation τ sig (Elt Ideal)) : val494 V0 (Proc.devRef .tc main_arg2) = aB V0 :=
  (after_keep _ 10 stepOps493_ok main_arg2 (by decide +kernel) (val493 V0)).trans (val493_main_arg2 V0)
theorem val494_main_arg3 (V0 : Valuation τ sig (Elt Ideal)) : val494 V0 (Proc.devRef .tc main_arg3) = aC V0 :=
  (after_keep _ 10 stepOps493_ok main_arg3 (by decide +kernel) (val493 V0)).trans (val493_main_arg3 V0)
theorem val494_main_v3 (V0 : Valuation τ sig (Elt Ideal)) : val494 V0 (Proc.devRef .tc main_v3) = decay (aA V0) :=
  (after_keep _ 10 stepOps493_ok main_v3 (by decide +kernel) (val493 V0)).trans (val493_main_v3 V0)
theorem val494_h (V0 : Valuation τ sig (Elt Ideal)) : val494 V0 (Proc.devRef .tc main_v9875) = hI (aX V0) (aA V0) (aB V0) 493 := by
  refine ((step493_val (val493 V0)).1).trans ?_
  rw [val493_main_arg0 V0, val493_main_v3 V0, val493_main_arg2 V0, val493_h V0]
  exact (hI_at (aX V0) (aA V0) (aB V0) 492 493 (by decide) rfl).symm
theorem val494_y (V0 : Valuation τ sig (Elt Ideal)) : val494 V0 (Proc.devRef .tc main_v9883) = yJ (aX V0) (aA V0) (aB V0) (aC V0) 494 := by
  refine ((step493_val (val493 V0)).2).trans ?_
  rw [val493_main_arg0 V0, val493_main_v3 V0, val493_main_arg2 V0, val493_main_arg3 V0, val493_h V0, val493_y V0]
  rw [← hI_at (aX V0) (aA V0) (aB V0) 492 493 (by decide) rfl]
  exact (yJ_at (aX V0) (aA V0) (aB V0) (aC V0) 493 494 (by decide) rfl).symm
/-- The contents after step 494. -/
def val495 (V0 : Valuation τ sig (Elt Ideal)) : Valuation τ sig (Elt Ideal) := after (stepOps494 (F := Ideal)) (val494 V0)
theorem val495_main_arg0 (V0 : Valuation τ sig (Elt Ideal)) : val495 V0 (Proc.devRef .tc main_arg0) = aX V0 :=
  (after_keep _ 10 stepOps494_ok main_arg0 (by decide +kernel) (val494 V0)).trans (val494_main_arg0 V0)
theorem val495_main_arg1 (V0 : Valuation τ sig (Elt Ideal)) : val495 V0 (Proc.devRef .tc main_arg1) = aA V0 :=
  (after_keep _ 10 stepOps494_ok main_arg1 (by decide +kernel) (val494 V0)).trans (val494_main_arg1 V0)
theorem val495_main_arg2 (V0 : Valuation τ sig (Elt Ideal)) : val495 V0 (Proc.devRef .tc main_arg2) = aB V0 :=
  (after_keep _ 10 stepOps494_ok main_arg2 (by decide +kernel) (val494 V0)).trans (val494_main_arg2 V0)
theorem val495_main_arg3 (V0 : Valuation τ sig (Elt Ideal)) : val495 V0 (Proc.devRef .tc main_arg3) = aC V0 :=
  (after_keep _ 10 stepOps494_ok main_arg3 (by decide +kernel) (val494 V0)).trans (val494_main_arg3 V0)
theorem val495_main_v3 (V0 : Valuation τ sig (Elt Ideal)) : val495 V0 (Proc.devRef .tc main_v3) = decay (aA V0) :=
  (after_keep _ 10 stepOps494_ok main_v3 (by decide +kernel) (val494 V0)).trans (val494_main_v3 V0)
theorem val495_h (V0 : Valuation τ sig (Elt Ideal)) : val495 V0 (Proc.devRef .tc main_v9895) = hI (aX V0) (aA V0) (aB V0) 494 := by
  refine ((step494_val (val494 V0)).1).trans ?_
  rw [val494_main_arg0 V0, val494_main_v3 V0, val494_main_arg2 V0, val494_h V0]
  exact (hI_at (aX V0) (aA V0) (aB V0) 493 494 (by decide) rfl).symm
theorem val495_y (V0 : Valuation τ sig (Elt Ideal)) : val495 V0 (Proc.devRef .tc main_v9903) = yJ (aX V0) (aA V0) (aB V0) (aC V0) 495 := by
  refine ((step494_val (val494 V0)).2).trans ?_
  rw [val494_main_arg0 V0, val494_main_v3 V0, val494_main_arg2 V0, val494_main_arg3 V0, val494_h V0, val494_y V0]
  rw [← hI_at (aX V0) (aA V0) (aB V0) 493 494 (by decide) rfl]
  exact (yJ_at (aX V0) (aA V0) (aB V0) (aC V0) 494 495 (by decide) rfl).symm
/-- The contents after step 495. -/
def val496 (V0 : Valuation τ sig (Elt Ideal)) : Valuation τ sig (Elt Ideal) := after (stepOps495 (F := Ideal)) (val495 V0)
theorem val496_main_arg0 (V0 : Valuation τ sig (Elt Ideal)) : val496 V0 (Proc.devRef .tc main_arg0) = aX V0 :=
  (after_keep _ 10 stepOps495_ok main_arg0 (by decide +kernel) (val495 V0)).trans (val495_main_arg0 V0)
theorem val496_main_arg1 (V0 : Valuation τ sig (Elt Ideal)) : val496 V0 (Proc.devRef .tc main_arg1) = aA V0 :=
  (after_keep _ 10 stepOps495_ok main_arg1 (by decide +kernel) (val495 V0)).trans (val495_main_arg1 V0)
theorem val496_main_arg2 (V0 : Valuation τ sig (Elt Ideal)) : val496 V0 (Proc.devRef .tc main_arg2) = aB V0 :=
  (after_keep _ 10 stepOps495_ok main_arg2 (by decide +kernel) (val495 V0)).trans (val495_main_arg2 V0)
theorem val496_main_arg3 (V0 : Valuation τ sig (Elt Ideal)) : val496 V0 (Proc.devRef .tc main_arg3) = aC V0 :=
  (after_keep _ 10 stepOps495_ok main_arg3 (by decide +kernel) (val495 V0)).trans (val495_main_arg3 V0)
theorem val496_main_v3 (V0 : Valuation τ sig (Elt Ideal)) : val496 V0 (Proc.devRef .tc main_v3) = decay (aA V0) :=
  (after_keep _ 10 stepOps495_ok main_v3 (by decide +kernel) (val495 V0)).trans (val495_main_v3 V0)
theorem val496_h (V0 : Valuation τ sig (Elt Ideal)) : val496 V0 (Proc.devRef .tc main_v9915) = hI (aX V0) (aA V0) (aB V0) 495 := by
  refine ((step495_val (val495 V0)).1).trans ?_
  rw [val495_main_arg0 V0, val495_main_v3 V0, val495_main_arg2 V0, val495_h V0]
  exact (hI_at (aX V0) (aA V0) (aB V0) 494 495 (by decide) rfl).symm
theorem val496_y (V0 : Valuation τ sig (Elt Ideal)) : val496 V0 (Proc.devRef .tc main_v9923) = yJ (aX V0) (aA V0) (aB V0) (aC V0) 496 := by
  refine ((step495_val (val495 V0)).2).trans ?_
  rw [val495_main_arg0 V0, val495_main_v3 V0, val495_main_arg2 V0, val495_main_arg3 V0, val495_h V0, val495_y V0]
  rw [← hI_at (aX V0) (aA V0) (aB V0) 494 495 (by decide) rfl]
  exact (yJ_at (aX V0) (aA V0) (aB V0) (aC V0) 495 496 (by decide) rfl).symm
/-- The contents after step 496. -/
def val497 (V0 : Valuation τ sig (Elt Ideal)) : Valuation τ sig (Elt Ideal) := after (stepOps496 (F := Ideal)) (val496 V0)
theorem val497_main_arg0 (V0 : Valuation τ sig (Elt Ideal)) : val497 V0 (Proc.devRef .tc main_arg0) = aX V0 :=
  (after_keep _ 10 stepOps496_ok main_arg0 (by decide +kernel) (val496 V0)).trans (val496_main_arg0 V0)
theorem val497_main_arg1 (V0 : Valuation τ sig (Elt Ideal)) : val497 V0 (Proc.devRef .tc main_arg1) = aA V0 :=
  (after_keep _ 10 stepOps496_ok main_arg1 (by decide +kernel) (val496 V0)).trans (val496_main_arg1 V0)
theorem val497_main_arg2 (V0 : Valuation τ sig (Elt Ideal)) : val497 V0 (Proc.devRef .tc main_arg2) = aB V0 :=
  (after_keep _ 10 stepOps496_ok main_arg2 (by decide +kernel) (val496 V0)).trans (val496_main_arg2 V0)
theorem val497_main_arg3 (V0 : Valuation τ sig (Elt Ideal)) : val497 V0 (Proc.devRef .tc main_arg3) = aC V0 :=
  (after_keep _ 10 stepOps496_ok main_arg3 (by decide +kernel) (val496 V0)).trans (val496_main_arg3 V0)
theorem val497_main_v3 (V0 : Valuation τ sig (Elt Ideal)) : val497 V0 (Proc.devRef .tc main_v3) = decay (aA V0) :=
  (after_keep _ 10 stepOps496_ok main_v3 (by decide +kernel) (val496 V0)).trans (val496_main_v3 V0)
theorem val497_h (V0 : Valuation τ sig (Elt Ideal)) : val497 V0 (Proc.devRef .tc main_v9935) = hI (aX V0) (aA V0) (aB V0) 496 := by
  refine ((step496_val (val496 V0)).1).trans ?_
  rw [val496_main_arg0 V0, val496_main_v3 V0, val496_main_arg2 V0, val496_h V0]
  exact (hI_at (aX V0) (aA V0) (aB V0) 495 496 (by decide) rfl).symm
theorem val497_y (V0 : Valuation τ sig (Elt Ideal)) : val497 V0 (Proc.devRef .tc main_v9943) = yJ (aX V0) (aA V0) (aB V0) (aC V0) 497 := by
  refine ((step496_val (val496 V0)).2).trans ?_
  rw [val496_main_arg0 V0, val496_main_v3 V0, val496_main_arg2 V0, val496_main_arg3 V0, val496_h V0, val496_y V0]
  rw [← hI_at (aX V0) (aA V0) (aB V0) 495 496 (by decide) rfl]
  exact (yJ_at (aX V0) (aA V0) (aB V0) (aC V0) 496 497 (by decide) rfl).symm
/-- The contents after step 497. -/
def val498 (V0 : Valuation τ sig (Elt Ideal)) : Valuation τ sig (Elt Ideal) := after (stepOps497 (F := Ideal)) (val497 V0)
theorem val498_main_arg0 (V0 : Valuation τ sig (Elt Ideal)) : val498 V0 (Proc.devRef .tc main_arg0) = aX V0 :=
  (after_keep _ 10 stepOps497_ok main_arg0 (by decide +kernel) (val497 V0)).trans (val497_main_arg0 V0)
theorem val498_main_arg1 (V0 : Valuation τ sig (Elt Ideal)) : val498 V0 (Proc.devRef .tc main_arg1) = aA V0 :=
  (after_keep _ 10 stepOps497_ok main_arg1 (by decide +kernel) (val497 V0)).trans (val497_main_arg1 V0)
theorem val498_main_arg2 (V0 : Valuation τ sig (Elt Ideal)) : val498 V0 (Proc.devRef .tc main_arg2) = aB V0 :=
  (after_keep _ 10 stepOps497_ok main_arg2 (by decide +kernel) (val497 V0)).trans (val497_main_arg2 V0)
theorem val498_main_arg3 (V0 : Valuation τ sig (Elt Ideal)) : val498 V0 (Proc.devRef .tc main_arg3) = aC V0 :=
  (after_keep _ 10 stepOps497_ok main_arg3 (by decide +kernel) (val497 V0)).trans (val497_main_arg3 V0)
theorem val498_main_v3 (V0 : Valuation τ sig (Elt Ideal)) : val498 V0 (Proc.devRef .tc main_v3) = decay (aA V0) :=
  (after_keep _ 10 stepOps497_ok main_v3 (by decide +kernel) (val497 V0)).trans (val497_main_v3 V0)
theorem val498_h (V0 : Valuation τ sig (Elt Ideal)) : val498 V0 (Proc.devRef .tc main_v9955) = hI (aX V0) (aA V0) (aB V0) 497 := by
  refine ((step497_val (val497 V0)).1).trans ?_
  rw [val497_main_arg0 V0, val497_main_v3 V0, val497_main_arg2 V0, val497_h V0]
  exact (hI_at (aX V0) (aA V0) (aB V0) 496 497 (by decide) rfl).symm
theorem val498_y (V0 : Valuation τ sig (Elt Ideal)) : val498 V0 (Proc.devRef .tc main_v9963) = yJ (aX V0) (aA V0) (aB V0) (aC V0) 498 := by
  refine ((step497_val (val497 V0)).2).trans ?_
  rw [val497_main_arg0 V0, val497_main_v3 V0, val497_main_arg2 V0, val497_main_arg3 V0, val497_h V0, val497_y V0]
  rw [← hI_at (aX V0) (aA V0) (aB V0) 496 497 (by decide) rfl]
  exact (yJ_at (aX V0) (aA V0) (aB V0) (aC V0) 497 498 (by decide) rfl).symm
/-- The contents after step 498. -/
def val499 (V0 : Valuation τ sig (Elt Ideal)) : Valuation τ sig (Elt Ideal) := after (stepOps498 (F := Ideal)) (val498 V0)
theorem val499_main_arg0 (V0 : Valuation τ sig (Elt Ideal)) : val499 V0 (Proc.devRef .tc main_arg0) = aX V0 :=
  (after_keep _ 10 stepOps498_ok main_arg0 (by decide +kernel) (val498 V0)).trans (val498_main_arg0 V0)
theorem val499_main_arg1 (V0 : Valuation τ sig (Elt Ideal)) : val499 V0 (Proc.devRef .tc main_arg1) = aA V0 :=
  (after_keep _ 10 stepOps498_ok main_arg1 (by decide +kernel) (val498 V0)).trans (val498_main_arg1 V0)
theorem val499_main_arg2 (V0 : Valuation τ sig (Elt Ideal)) : val499 V0 (Proc.devRef .tc main_arg2) = aB V0 :=
  (after_keep _ 10 stepOps498_ok main_arg2 (by decide +kernel) (val498 V0)).trans (val498_main_arg2 V0)
theorem val499_main_arg3 (V0 : Valuation τ sig (Elt Ideal)) : val499 V0 (Proc.devRef .tc main_arg3) = aC V0 :=
  (after_keep _ 10 stepOps498_ok main_arg3 (by decide +kernel) (val498 V0)).trans (val498_main_arg3 V0)
theorem val499_main_v3 (V0 : Valuation τ sig (Elt Ideal)) : val499 V0 (Proc.devRef .tc main_v3) = decay (aA V0) :=
  (after_keep _ 10 stepOps498_ok main_v3 (by decide +kernel) (val498 V0)).trans (val498_main_v3 V0)
theorem val499_h (V0 : Valuation τ sig (Elt Ideal)) : val499 V0 (Proc.devRef .tc main_v9975) = hI (aX V0) (aA V0) (aB V0) 498 := by
  refine ((step498_val (val498 V0)).1).trans ?_
  rw [val498_main_arg0 V0, val498_main_v3 V0, val498_main_arg2 V0, val498_h V0]
  exact (hI_at (aX V0) (aA V0) (aB V0) 497 498 (by decide) rfl).symm
theorem val499_y (V0 : Valuation τ sig (Elt Ideal)) : val499 V0 (Proc.devRef .tc main_v9983) = yJ (aX V0) (aA V0) (aB V0) (aC V0) 499 := by
  refine ((step498_val (val498 V0)).2).trans ?_
  rw [val498_main_arg0 V0, val498_main_v3 V0, val498_main_arg2 V0, val498_main_arg3 V0, val498_h V0, val498_y V0]
  rw [← hI_at (aX V0) (aA V0) (aB V0) 497 498 (by decide) rfl]
  exact (yJ_at (aX V0) (aA V0) (aB V0) (aC V0) 498 499 (by decide) rfl).symm
/-- The contents after step 499. -/
def val500 (V0 : Valuation τ sig (Elt Ideal)) : Valuation τ sig (Elt Ideal) := after (stepOps499 (F := Ideal)) (val499 V0)
theorem val500_main_arg0 (V0 : Valuation τ sig (Elt Ideal)) : val500 V0 (Proc.devRef .tc main_arg0) = aX V0 :=
  (after_keep _ 10 stepOps499_ok main_arg0 (by decide +kernel) (val499 V0)).trans (val499_main_arg0 V0)
theorem val500_main_arg1 (V0 : Valuation τ sig (Elt Ideal)) : val500 V0 (Proc.devRef .tc main_arg1) = aA V0 :=
  (after_keep _ 10 stepOps499_ok main_arg1 (by decide +kernel) (val499 V0)).trans (val499_main_arg1 V0)
theorem val500_main_arg2 (V0 : Valuation τ sig (Elt Ideal)) : val500 V0 (Proc.devRef .tc main_arg2) = aB V0 :=
  (after_keep _ 10 stepOps499_ok main_arg2 (by decide +kernel) (val499 V0)).trans (val499_main_arg2 V0)
theorem val500_main_arg3 (V0 : Valuation τ sig (Elt Ideal)) : val500 V0 (Proc.devRef .tc main_arg3) = aC V0 :=
  (after_keep _ 10 stepOps499_ok main_arg3 (by decide +kernel) (val499 V0)).trans (val499_main_arg3 V0)
theorem val500_main_v3 (V0 : Valuation τ sig (Elt Ideal)) : val500 V0 (Proc.devRef .tc main_v3) = decay (aA V0) :=
  (after_keep _ 10 stepOps499_ok main_v3 (by decide +kernel) (val499 V0)).trans (val499_main_v3 V0)
theorem val500_h (V0 : Valuation τ sig (Elt Ideal)) : val500 V0 (Proc.devRef .tc main_v9995) = hI (aX V0) (aA V0) (aB V0) 499 := by
  refine ((step499_val (val499 V0)).1).trans ?_
  rw [val499_main_arg0 V0, val499_main_v3 V0, val499_main_arg2 V0, val499_h V0]
  exact (hI_at (aX V0) (aA V0) (aB V0) 498 499 (by decide) rfl).symm
theorem val500_y (V0 : Valuation τ sig (Elt Ideal)) : val500 V0 (Proc.devRef .tc main_v10003) = yJ (aX V0) (aA V0) (aB V0) (aC V0) 500 := by
  refine ((step499_val (val499 V0)).2).trans ?_
  rw [val499_main_arg0 V0, val499_main_v3 V0, val499_main_arg2 V0, val499_main_arg3 V0, val499_h V0, val499_y V0]
  rw [← hI_at (aX V0) (aA V0) (aB V0) 498 499 (by decide) rfl]
  exact (yJ_at (aX V0) (aA V0) (aB V0) (aC V0) 499 500 (by decide) rfl).symm
/-- The contents after step 500. -/
def val501 (V0 : Valuation τ sig (Elt Ideal)) : Valuation τ sig (Elt Ideal) := after (stepOps500 (F := Ideal)) (val500 V0)
theorem val501_main_arg0 (V0 : Valuation τ sig (Elt Ideal)) : val501 V0 (Proc.devRef .tc main_arg0) = aX V0 :=
  (after_keep _ 10 stepOps500_ok main_arg0 (by decide +kernel) (val500 V0)).trans (val500_main_arg0 V0)
theorem val501_main_arg1 (V0 : Valuation τ sig (Elt Ideal)) : val501 V0 (Proc.devRef .tc main_arg1) = aA V0 :=
  (after_keep _ 10 stepOps500_ok main_arg1 (by decide +kernel) (val500 V0)).trans (val500_main_arg1 V0)
theorem val501_main_arg2 (V0 : Valuation τ sig (Elt Ideal)) : val501 V0 (Proc.devRef .tc main_arg2) = aB V0 :=
  (after_keep _ 10 stepOps500_ok main_arg2 (by decide +kernel) (val500 V0)).trans (val500_main_arg2 V0)
theorem val501_main_arg3 (V0 : Valuation τ sig (Elt Ideal)) : val501 V0 (Proc.devRef .tc main_arg3) = aC V0 :=
  (after_keep _ 10 stepOps500_ok main_arg3 (by decide +kernel) (val500 V0)).trans (val500_main_arg3 V0)
theorem val501_main_v3 (V0 : Valuation τ sig (Elt Ideal)) : val501 V0 (Proc.devRef .tc main_v3) = decay (aA V0) :=
  (after_keep _ 10 stepOps500_ok main_v3 (by decide +kernel) (val500 V0)).trans (val500_main_v3 V0)
theorem val501_h (V0 : Valuation τ sig (Elt Ideal)) : val501 V0 (Proc.devRef .tc main_v10015) = hI (aX V0) (aA V0) (aB V0) 500 := by
  refine ((step500_val (val500 V0)).1).trans ?_
  rw [val500_main_arg0 V0, val500_main_v3 V0, val500_main_arg2 V0, val500_h V0]
  exact (hI_at (aX V0) (aA V0) (aB V0) 499 500 (by decide) rfl).symm
theorem val501_y (V0 : Valuation τ sig (Elt Ideal)) : val501 V0 (Proc.devRef .tc main_v10023) = yJ (aX V0) (aA V0) (aB V0) (aC V0) 501 := by
  refine ((step500_val (val500 V0)).2).trans ?_
  rw [val500_main_arg0 V0, val500_main_v3 V0, val500_main_arg2 V0, val500_main_arg3 V0, val500_h V0, val500_y V0]
  rw [← hI_at (aX V0) (aA V0) (aB V0) 499 500 (by decide) rfl]
  exact (yJ_at (aX V0) (aA V0) (aB V0) (aC V0) 500 501 (by decide) rfl).symm
/-- The contents after step 501. -/
def val502 (V0 : Valuation τ sig (Elt Ideal)) : Valuation τ sig (Elt Ideal) := after (stepOps501 (F := Ideal)) (val501 V0)
theorem val502_main_arg0 (V0 : Valuation τ sig (Elt Ideal)) : val502 V0 (Proc.devRef .tc main_arg0) = aX V0 :=
  (after_keep _ 10 stepOps501_ok main_arg0 (by decide +kernel) (val501 V0)).trans (val501_main_arg0 V0)
theorem val502_main_arg1 (V0 : Valuation τ sig (Elt Ideal)) : val502 V0 (Proc.devRef .tc main_arg1) = aA V0 :=
  (after_keep _ 10 stepOps501_ok main_arg1 (by decide +kernel) (val501 V0)).trans (val501_main_arg1 V0)
theorem val502_main_arg2 (V0 : Valuation τ sig (Elt Ideal)) : val502 V0 (Proc.devRef .tc main_arg2) = aB V0 :=
  (after_keep _ 10 stepOps501_ok main_arg2 (by decide +kernel) (val501 V0)).trans (val501_main_arg2 V0)
theorem val502_main_arg3 (V0 : Valuation τ sig (Elt Ideal)) : val502 V0 (Proc.devRef .tc main_arg3) = aC V0 :=
  (after_keep _ 10 stepOps501_ok main_arg3 (by decide +kernel) (val501 V0)).trans (val501_main_arg3 V0)
theorem val502_main_v3 (V0 : Valuation τ sig (Elt Ideal)) : val502 V0 (Proc.devRef .tc main_v3) = decay (aA V0) :=
  (after_keep _ 10 stepOps501_ok main_v3 (by decide +kernel) (val501 V0)).trans (val501_main_v3 V0)
theorem val502_h (V0 : Valuation τ sig (Elt Ideal)) : val502 V0 (Proc.devRef .tc main_v10035) = hI (aX V0) (aA V0) (aB V0) 501 := by
  refine ((step501_val (val501 V0)).1).trans ?_
  rw [val501_main_arg0 V0, val501_main_v3 V0, val501_main_arg2 V0, val501_h V0]
  exact (hI_at (aX V0) (aA V0) (aB V0) 500 501 (by decide) rfl).symm
theorem val502_y (V0 : Valuation τ sig (Elt Ideal)) : val502 V0 (Proc.devRef .tc main_v10043) = yJ (aX V0) (aA V0) (aB V0) (aC V0) 502 := by
  refine ((step501_val (val501 V0)).2).trans ?_
  rw [val501_main_arg0 V0, val501_main_v3 V0, val501_main_arg2 V0, val501_main_arg3 V0, val501_h V0, val501_y V0]
  rw [← hI_at (aX V0) (aA V0) (aB V0) 500 501 (by decide) rfl]
  exact (yJ_at (aX V0) (aA V0) (aB V0) (aC V0) 501 502 (by decide) rfl).symm
/-- The contents after step 502. -/
def val503 (V0 : Valuation τ sig (Elt Ideal)) : Valuation τ sig (Elt Ideal) := after (stepOps502 (F := Ideal)) (val502 V0)
theorem val503_main_arg0 (V0 : Valuation τ sig (Elt Ideal)) : val503 V0 (Proc.devRef .tc main_arg0) = aX V0 :=
  (after_keep _ 10 stepOps502_ok main_arg0 (by decide +kernel) (val502 V0)).trans (val502_main_arg0 V0)
theorem val503_main_arg1 (V0 : Valuation τ sig (Elt Ideal)) : val503 V0 (Proc.devRef .tc main_arg1) = aA V0 :=
  (after_keep _ 10 stepOps502_ok main_arg1 (by decide +kernel) (val502 V0)).trans (val502_main_arg1 V0)
theorem val503_main_arg2 (V0 : Valuation τ sig (Elt Ideal)) : val503 V0 (Proc.devRef .tc main_arg2) = aB V0 :=
  (after_keep _ 10 stepOps502_ok main_arg2 (by decide +kernel) (val502 V0)).trans (val502_main_arg2 V0)
theorem val503_main_arg3 (V0 : Valuation τ sig (Elt Ideal)) : val503 V0 (Proc.devRef .tc main_arg3) = aC V0 :=
  (after_keep _ 10 stepOps502_ok main_arg3 (by decide +kernel) (val502 V0)).trans (val502_main_arg3 V0)
theorem val503_main_v3 (V0 : Valuation τ sig (Elt Ideal)) : val503 V0 (Proc.devRef .tc main_v3) = decay (aA V0) :=
  (after_keep _ 10 stepOps502_ok main_v3 (by decide +kernel) (val502 V0)).trans (val502_main_v3 V0)
theorem val503_h (V0 : Valuation τ sig (Elt Ideal)) : val503 V0 (Proc.devRef .tc main_v10055) = hI (aX V0) (aA V0) (aB V0) 502 := by
  refine ((step502_val (val502 V0)).1).trans ?_
  rw [val502_main_arg0 V0, val502_main_v3 V0, val502_main_arg2 V0, val502_h V0]
  exact (hI_at (aX V0) (aA V0) (aB V0) 501 502 (by decide) rfl).symm
theorem val503_y (V0 : Valuation τ sig (Elt Ideal)) : val503 V0 (Proc.devRef .tc main_v10063) = yJ (aX V0) (aA V0) (aB V0) (aC V0) 503 := by
  refine ((step502_val (val502 V0)).2).trans ?_
  rw [val502_main_arg0 V0, val502_main_v3 V0, val502_main_arg2 V0, val502_main_arg3 V0, val502_h V0, val502_y V0]
  rw [← hI_at (aX V0) (aA V0) (aB V0) 501 502 (by decide) rfl]
  exact (yJ_at (aX V0) (aA V0) (aB V0) (aC V0) 502 503 (by decide) rfl).symm
/-- The contents after step 503. -/
def val504 (V0 : Valuation τ sig (Elt Ideal)) : Valuation τ sig (Elt Ideal) := after (stepOps503 (F := Ideal)) (val503 V0)
theorem val504_main_arg0 (V0 : Valuation τ sig (Elt Ideal)) : val504 V0 (Proc.devRef .tc main_arg0) = aX V0 :=
  (after_keep _ 10 stepOps503_ok main_arg0 (by decide +kernel) (val503 V0)).trans (val503_main_arg0 V0)
theorem val504_main_arg1 (V0 : Valuation τ sig (Elt Ideal)) : val504 V0 (Proc.devRef .tc main_arg1) = aA V0 :=
  (after_keep _ 10 stepOps503_ok main_arg1 (by decide +kernel) (val503 V0)).trans (val503_main_arg1 V0)
theorem val504_main_arg2 (V0 : Valuation τ sig (Elt Ideal)) : val504 V0 (Proc.devRef .tc main_arg2) = aB V0 :=
  (after_keep _ 10 stepOps503_ok main_arg2 (by decide +kernel) (val503 V0)).trans (val503_main_arg2 V0)
theorem val504_main_arg3 (V0 : Valuation τ sig (Elt Ideal)) : val504 V0 (Proc.devRef .tc main_arg3) = aC V0 :=
  (after_keep _ 10 stepOps503_ok main_arg3 (by decide +kernel) (val503 V0)).trans (val503_main_arg3 V0)
theorem val504_main_v3 (V0 : Valuation τ sig (Elt Ideal)) : val504 V0 (Proc.devRef .tc main_v3) = decay (aA V0) :=
  (after_keep _ 10 stepOps503_ok main_v3 (by decide +kernel) (val503 V0)).trans (val503_main_v3 V0)
theorem val504_h (V0 : Valuation τ sig (Elt Ideal)) : val504 V0 (Proc.devRef .tc main_v10075) = hI (aX V0) (aA V0) (aB V0) 503 := by
  refine ((step503_val (val503 V0)).1).trans ?_
  rw [val503_main_arg0 V0, val503_main_v3 V0, val503_main_arg2 V0, val503_h V0]
  exact (hI_at (aX V0) (aA V0) (aB V0) 502 503 (by decide) rfl).symm
theorem val504_y (V0 : Valuation τ sig (Elt Ideal)) : val504 V0 (Proc.devRef .tc main_v10083) = yJ (aX V0) (aA V0) (aB V0) (aC V0) 504 := by
  refine ((step503_val (val503 V0)).2).trans ?_
  rw [val503_main_arg0 V0, val503_main_v3 V0, val503_main_arg2 V0, val503_main_arg3 V0, val503_h V0, val503_y V0]
  rw [← hI_at (aX V0) (aA V0) (aB V0) 502 503 (by decide) rfl]
  exact (yJ_at (aX V0) (aA V0) (aB V0) (aC V0) 503 504 (by decide) rfl).symm
/-- The contents after step 504. -/
def val505 (V0 : Valuation τ sig (Elt Ideal)) : Valuation τ sig (Elt Ideal) := after (stepOps504 (F := Ideal)) (val504 V0)
theorem val505_main_arg0 (V0 : Valuation τ sig (Elt Ideal)) : val505 V0 (Proc.devRef .tc main_arg0) = aX V0 :=
  (after_keep _ 10 stepOps504_ok main_arg0 (by decide +kernel) (val504 V0)).trans (val504_main_arg0 V0)
theorem val505_main_arg1 (V0 : Valuation τ sig (Elt Ideal)) : val505 V0 (Proc.devRef .tc main_arg1) = aA V0 :=
  (after_keep _ 10 stepOps504_ok main_arg1 (by decide +kernel) (val504 V0)).trans (val504_main_arg1 V0)
theorem val505_main_arg2 (V0 : Valuation τ sig (Elt Ideal)) : val505 V0 (Proc.devRef .tc main_arg2) = aB V0 :=
  (after_keep _ 10 stepOps504_ok main_arg2 (by decide +kernel) (val504 V0)).trans (val504_main_arg2 V0)
theorem val505_main_arg3 (V0 : Valuation τ sig (Elt Ideal)) : val505 V0 (Proc.devRef .tc main_arg3) = aC V0 :=
  (after_keep _ 10 stepOps504_ok main_arg3 (by decide +kernel) (val504 V0)).trans (val504_main_arg3 V0)
theorem val505_main_v3 (V0 : Valuation τ sig (Elt Ideal)) : val505 V0 (Proc.devRef .tc main_v3) = decay (aA V0) :=
  (after_keep _ 10 stepOps504_ok main_v3 (by decide +kernel) (val504 V0)).trans (val504_main_v3 V0)
theorem val505_h (V0 : Valuation τ sig (Elt Ideal)) : val505 V0 (Proc.devRef .tc main_v10095) = hI (aX V0) (aA V0) (aB V0) 504 := by
  refine ((step504_val (val504 V0)).1).trans ?_
  rw [val504_main_arg0 V0, val504_main_v3 V0, val504_main_arg2 V0, val504_h V0]
  exact (hI_at (aX V0) (aA V0) (aB V0) 503 504 (by decide) rfl).symm
theorem val505_y (V0 : Valuation τ sig (Elt Ideal)) : val505 V0 (Proc.devRef .tc main_v10103) = yJ (aX V0) (aA V0) (aB V0) (aC V0) 505 := by
  refine ((step504_val (val504 V0)).2).trans ?_
  rw [val504_main_arg0 V0, val504_main_v3 V0, val504_main_arg2 V0, val504_main_arg3 V0, val504_h V0, val504_y V0]
  rw [← hI_at (aX V0) (aA V0) (aB V0) 503 504 (by decide) rfl]
  exact (yJ_at (aX V0) (aA V0) (aB V0) (aC V0) 504 505 (by decide) rfl).symm
/-- The contents after step 505. -/
def val506 (V0 : Valuation τ sig (Elt Ideal)) : Valuation τ sig (Elt Ideal) := after (stepOps505 (F := Ideal)) (val505 V0)
theorem val506_main_arg0 (V0 : Valuation τ sig (Elt Ideal)) : val506 V0 (Proc.devRef .tc main_arg0) = aX V0 :=
  (after_keep _ 10 stepOps505_ok main_arg0 (by decide +kernel) (val505 V0)).trans (val505_main_arg0 V0)
theorem val506_main_arg1 (V0 : Valuation τ sig (Elt Ideal)) : val506 V0 (Proc.devRef .tc main_arg1) = aA V0 :=
  (after_keep _ 10 stepOps505_ok main_arg1 (by decide +kernel) (val505 V0)).trans (val505_main_arg1 V0)
theorem val506_main_arg2 (V0 : Valuation τ sig (Elt Ideal)) : val506 V0 (Proc.devRef .tc main_arg2) = aB V0 :=
  (after_keep _ 10 stepOps505_ok main_arg2 (by decide +kernel) (val505 V0)).trans (val505_main_arg2 V0)
theorem val506_main_arg3 (V0 : Valuation τ sig (Elt Ideal)) : val506 V0 (Proc.devRef .tc main_arg3) = aC V0 :=
  (after_keep _ 10 stepOps505_ok main_arg3 (by decide +kernel) (val505 V0)).trans (val505_main_arg3 V0)
theorem val506_main_v3 (V0 : Valuation τ sig (Elt Ideal)) : val506 V0 (Proc.devRef .tc main_v3) = decay (aA V0) :=
  (after_keep _ 10 stepOps505_ok main_v3 (by decide +kernel) (val505 V0)).trans (val505_main_v3 V0)
theorem val506_h (V0 : Valuation τ sig (Elt Ideal)) : val506 V0 (Proc.devRef .tc main_v10115) = hI (aX V0) (aA V0) (aB V0) 505 := by
  refine ((step505_val (val505 V0)).1).trans ?_
  rw [val505_main_arg0 V0, val505_main_v3 V0, val505_main_arg2 V0, val505_h V0]
  exact (hI_at (aX V0) (aA V0) (aB V0) 504 505 (by decide) rfl).symm
theorem val506_y (V0 : Valuation τ sig (Elt Ideal)) : val506 V0 (Proc.devRef .tc main_v10123) = yJ (aX V0) (aA V0) (aB V0) (aC V0) 506 := by
  refine ((step505_val (val505 V0)).2).trans ?_
  rw [val505_main_arg0 V0, val505_main_v3 V0, val505_main_arg2 V0, val505_main_arg3 V0, val505_h V0, val505_y V0]
  rw [← hI_at (aX V0) (aA V0) (aB V0) 504 505 (by decide) rfl]
  exact (yJ_at (aX V0) (aA V0) (aB V0) (aC V0) 505 506 (by decide) rfl).symm
/-- The contents after step 506. -/
def val507 (V0 : Valuation τ sig (Elt Ideal)) : Valuation τ sig (Elt Ideal) := after (stepOps506 (F := Ideal)) (val506 V0)
theorem val507_main_arg0 (V0 : Valuation τ sig (Elt Ideal)) : val507 V0 (Proc.devRef .tc main_arg0) = aX V0 :=
  (after_keep _ 10 stepOps506_ok main_arg0 (by decide +kernel) (val506 V0)).trans (val506_main_arg0 V0)
theorem val507_main_arg1 (V0 : Valuation τ sig (Elt Ideal)) : val507 V0 (Proc.devRef .tc main_arg1) = aA V0 :=
  (after_keep _ 10 stepOps506_ok main_arg1 (by decide +kernel) (val506 V0)).trans (val506_main_arg1 V0)
theorem val507_main_arg2 (V0 : Valuation τ sig (Elt Ideal)) : val507 V0 (Proc.devRef .tc main_arg2) = aB V0 :=
  (after_keep _ 10 stepOps506_ok main_arg2 (by decide +kernel) (val506 V0)).trans (val506_main_arg2 V0)
theorem val507_main_arg3 (V0 : Valuation τ sig (Elt Ideal)) : val507 V0 (Proc.devRef .tc main_arg3) = aC V0 :=
  (after_keep _ 10 stepOps506_ok main_arg3 (by decide +kernel) (val506 V0)).trans (val506_main_arg3 V0)
theorem val507_main_v3 (V0 : Valuation τ sig (Elt Ideal)) : val507 V0 (Proc.devRef .tc main_v3) = decay (aA V0) :=
  (after_keep _ 10 stepOps506_ok main_v3 (by decide +kernel) (val506 V0)).trans (val506_main_v3 V0)
theorem val507_h (V0 : Valuation τ sig (Elt Ideal)) : val507 V0 (Proc.devRef .tc main_v10135) = hI (aX V0) (aA V0) (aB V0) 506 := by
  refine ((step506_val (val506 V0)).1).trans ?_
  rw [val506_main_arg0 V0, val506_main_v3 V0, val506_main_arg2 V0, val506_h V0]
  exact (hI_at (aX V0) (aA V0) (aB V0) 505 506 (by decide) rfl).symm
theorem val507_y (V0 : Valuation τ sig (Elt Ideal)) : val507 V0 (Proc.devRef .tc main_v10143) = yJ (aX V0) (aA V0) (aB V0) (aC V0) 507 := by
  refine ((step506_val (val506 V0)).2).trans ?_
  rw [val506_main_arg0 V0, val506_main_v3 V0, val506_main_arg2 V0, val506_main_arg3 V0, val506_h V0, val506_y V0]
  rw [← hI_at (aX V0) (aA V0) (aB V0) 505 506 (by decide) rfl]
  exact (yJ_at (aX V0) (aA V0) (aB V0) (aC V0) 506 507 (by decide) rfl).symm
/-- The contents after step 507. -/
def val508 (V0 : Valuation τ sig (Elt Ideal)) : Valuation τ sig (Elt Ideal) := after (stepOps507 (F := Ideal)) (val507 V0)
theorem val508_main_arg0 (V0 : Valuation τ sig (Elt Ideal)) : val508 V0 (Proc.devRef .tc main_arg0) = aX V0 :=
  (after_keep _ 10 stepOps507_ok main_arg0 (by decide +kernel) (val507 V0)).trans (val507_main_arg0 V0)
theorem val508_main_arg1 (V0 : Valuation τ sig (Elt Ideal)) : val508 V0 (Proc.devRef .tc main_arg1) = aA V0 :=
  (after_keep _ 10 stepOps507_ok main_arg1 (by decide +kernel) (val507 V0)).trans (val507_main_arg1 V0)
theorem val508_main_arg2 (V0 : Valuation τ sig (Elt Ideal)) : val508 V0 (Proc.devRef .tc main_arg2) = aB V0 :=
  (after_keep _ 10 stepOps507_ok main_arg2 (by decide +kernel) (val507 V0)).trans (val507_main_arg2 V0)
theorem val508_main_arg3 (V0 : Valuation τ sig (Elt Ideal)) : val508 V0 (Proc.devRef .tc main_arg3) = aC V0 :=
  (after_keep _ 10 stepOps507_ok main_arg3 (by decide +kernel) (val507 V0)).trans (val507_main_arg3 V0)
theorem val508_main_v3 (V0 : Valuation τ sig (Elt Ideal)) : val508 V0 (Proc.devRef .tc main_v3) = decay (aA V0) :=
  (after_keep _ 10 stepOps507_ok main_v3 (by decide +kernel) (val507 V0)).trans (val507_main_v3 V0)
theorem val508_h (V0 : Valuation τ sig (Elt Ideal)) : val508 V0 (Proc.devRef .tc main_v10155) = hI (aX V0) (aA V0) (aB V0) 507 := by
  refine ((step507_val (val507 V0)).1).trans ?_
  rw [val507_main_arg0 V0, val507_main_v3 V0, val507_main_arg2 V0, val507_h V0]
  exact (hI_at (aX V0) (aA V0) (aB V0) 506 507 (by decide) rfl).symm
theorem val508_y (V0 : Valuation τ sig (Elt Ideal)) : val508 V0 (Proc.devRef .tc main_v10163) = yJ (aX V0) (aA V0) (aB V0) (aC V0) 508 := by
  refine ((step507_val (val507 V0)).2).trans ?_
  rw [val507_main_arg0 V0, val507_main_v3 V0, val507_main_arg2 V0, val507_main_arg3 V0, val507_h V0, val507_y V0]
  rw [← hI_at (aX V0) (aA V0) (aB V0) 506 507 (by decide) rfl]
  exact (yJ_at (aX V0) (aA V0) (aB V0) (aC V0) 507 508 (by decide) rfl).symm
/-- The contents after step 508. -/
def val509 (V0 : Valuation τ sig (Elt Ideal)) : Valuation τ sig (Elt Ideal) := after (stepOps508 (F := Ideal)) (val508 V0)
theorem val509_main_arg0 (V0 : Valuation τ sig (Elt Ideal)) : val509 V0 (Proc.devRef .tc main_arg0) = aX V0 :=
  (after_keep _ 10 stepOps508_ok main_arg0 (by decide +kernel) (val508 V0)).trans (val508_main_arg0 V0)
theorem val509_main_arg1 (V0 : Valuation τ sig (Elt Ideal)) : val509 V0 (Proc.devRef .tc main_arg1) = aA V0 :=
  (after_keep _ 10 stepOps508_ok main_arg1 (by decide +kernel) (val508 V0)).trans (val508_main_arg1 V0)
theorem val509_main_arg2 (V0 : Valuation τ sig (Elt Ideal)) : val509 V0 (Proc.devRef .tc main_arg2) = aB V0 :=
  (after_keep _ 10 stepOps508_ok main_arg2 (by decide +kernel) (val508 V0)).trans (val508_main_arg2 V0)
theorem val509_main_arg3 (V0 : Valuation τ sig (Elt Ideal)) : val509 V0 (Proc.devRef .tc main_arg3) = aC V0 :=
  (after_keep _ 10 stepOps508_ok main_arg3 (by decide +kernel) (val508 V0)).trans (val508_main_arg3 V0)
theorem val509_main_v3 (V0 : Valuation τ sig (Elt Ideal)) : val509 V0 (Proc.devRef .tc main_v3) = decay (aA V0) :=
  (after_keep _ 10 stepOps508_ok main_v3 (by decide +kernel) (val508 V0)).trans (val508_main_v3 V0)
theorem val509_h (V0 : Valuation τ sig (Elt Ideal)) : val509 V0 (Proc.devRef .tc main_v10175) = hI (aX V0) (aA V0) (aB V0) 508 := by
  refine ((step508_val (val508 V0)).1).trans ?_
  rw [val508_main_arg0 V0, val508_main_v3 V0, val508_main_arg2 V0, val508_h V0]
  exact (hI_at (aX V0) (aA V0) (aB V0) 507 508 (by decide) rfl).symm
theorem val509_y (V0 : Valuation τ sig (Elt Ideal)) : val509 V0 (Proc.devRef .tc main_v10183) = yJ (aX V0) (aA V0) (aB V0) (aC V0) 509 := by
  refine ((step508_val (val508 V0)).2).trans ?_
  rw [val508_main_arg0 V0, val508_main_v3 V0, val508_main_arg2 V0, val508_main_arg3 V0, val508_h V0, val508_y V0]
  rw [← hI_at (aX V0) (aA V0) (aB V0) 507 508 (by decide) rfl]
  exact (yJ_at (aX V0) (aA V0) (aB V0) (aC V0) 508 509 (by decide) rfl).symm
/-- The contents after step 509. -/
def val510 (V0 : Valuation τ sig (Elt Ideal)) : Valuation τ sig (Elt Ideal) := after (stepOps509 (F := Ideal)) (val509 V0)
theorem val510_main_arg0 (V0 : Valuation τ sig (Elt Ideal)) : val510 V0 (Proc.devRef .tc main_arg0) = aX V0 :=
  (after_keep _ 10 stepOps509_ok main_arg0 (by decide +kernel) (val509 V0)).trans (val509_main_arg0 V0)
theorem val510_main_arg1 (V0 : Valuation τ sig (Elt Ideal)) : val510 V0 (Proc.devRef .tc main_arg1) = aA V0 :=
  (after_keep _ 10 stepOps509_ok main_arg1 (by decide +kernel) (val509 V0)).trans (val509_main_arg1 V0)
theorem val510_main_arg2 (V0 : Valuation τ sig (Elt Ideal)) : val510 V0 (Proc.devRef .tc main_arg2) = aB V0 :=
  (after_keep _ 10 stepOps509_ok main_arg2 (by decide +kernel) (val509 V0)).trans (val509_main_arg2 V0)
theorem val510_main_arg3 (V0 : Valuation τ sig (Elt Ideal)) : val510 V0 (Proc.devRef .tc main_arg3) = aC V0 :=
  (after_keep _ 10 stepOps509_ok main_arg3 (by decide +kernel) (val509 V0)).trans (val509_main_arg3 V0)
theorem val510_main_v3 (V0 : Valuation τ sig (Elt Ideal)) : val510 V0 (Proc.devRef .tc main_v3) = decay (aA V0) :=
  (after_keep _ 10 stepOps509_ok main_v3 (by decide +kernel) (val509 V0)).trans (val509_main_v3 V0)
theorem val510_h (V0 : Valuation τ sig (Elt Ideal)) : val510 V0 (Proc.devRef .tc main_v10195) = hI (aX V0) (aA V0) (aB V0) 509 := by
  refine ((step509_val (val509 V0)).1).trans ?_
  rw [val509_main_arg0 V0, val509_main_v3 V0, val509_main_arg2 V0, val509_h V0]
  exact (hI_at (aX V0) (aA V0) (aB V0) 508 509 (by decide) rfl).symm
theorem val510_y (V0 : Valuation τ sig (Elt Ideal)) : val510 V0 (Proc.devRef .tc main_v10203) = yJ (aX V0) (aA V0) (aB V0) (aC V0) 510 := by
  refine ((step509_val (val509 V0)).2).trans ?_
  rw [val509_main_arg0 V0, val509_main_v3 V0, val509_main_arg2 V0, val509_main_arg3 V0, val509_h V0, val509_y V0]
  rw [← hI_at (aX V0) (aA V0) (aB V0) 508 509 (by decide) rfl]
  exact (yJ_at (aX V0) (aA V0) (aB V0) (aC V0) 509 510 (by decide) rfl).symm
/-- The contents after step 510. -/
def val511 (V0 : Valuation τ sig (Elt Ideal)) : Valuation τ sig (Elt Ideal) := after (stepOps510 (F := Ideal)) (val510 V0)
theorem val511_main_arg0 (V0 : Valuation τ sig (Elt Ideal)) : val511 V0 (Proc.devRef .tc main_arg0) = aX V0 :=
  (after_keep _ 10 stepOps510_ok main_arg0 (by decide +kernel) (val510 V0)).trans (val510_main_arg0 V0)
theorem val511_main_arg1 (V0 : Valuation τ sig (Elt Ideal)) : val511 V0 (Proc.devRef .tc main_arg1) = aA V0 :=
  (after_keep _ 10 stepOps510_ok main_arg1 (by decide +kernel) (val510 V0)).trans (val510_main_arg1 V0)
theorem val511_main_arg2 (V0 : Valuation τ sig (Elt Ideal)) : val511 V0 (Proc.devRef .tc main_arg2) = aB V0 :=
  (after_keep _ 10 stepOps510_ok main_arg2 (by decide +kernel) (val510 V0)).trans (val510_main_arg2 V0)
theorem val511_main_arg3 (V0 : Valuation τ sig (Elt Ideal)) : val511 V0 (Proc.devRef .tc main_arg3) = aC V0 :=
  (after_keep _ 10 stepOps510_ok main_arg3 (by decide +kernel) (val510 V0)).trans (val510_main_arg3 V0)
theorem val511_main_v3 (V0 : Valuation τ sig (Elt Ideal)) : val511 V0 (Proc.devRef .tc main_v3) = decay (aA V0) :=
  (after_keep _ 10 stepOps510_ok main_v3 (by decide +kernel) (val510 V0)).trans (val510_main_v3 V0)
theorem val511_h (V0 : Valuation τ sig (Elt Ideal)) : val511 V0 (Proc.devRef .tc main_v10215) = hI (aX V0) (aA V0) (aB V0) 510 := by
  refine ((step510_val (val510 V0)).1).trans ?_
  rw [val510_main_arg0 V0, val510_main_v3 V0, val510_main_arg2 V0, val510_h V0]
  exact (hI_at (aX V0) (aA V0) (aB V0) 509 510 (by decide) rfl).symm
theorem val511_y (V0 : Valuation τ sig (Elt Ideal)) : val511 V0 (Proc.devRef .tc main_v10223) = yJ (aX V0) (aA V0) (aB V0) (aC V0) 511 := by
  refine ((step510_val (val510 V0)).2).trans ?_
  rw [val510_main_arg0 V0, val510_main_v3 V0, val510_main_arg2 V0, val510_main_arg3 V0, val510_h V0, val510_y V0]
  rw [← hI_at (aX V0) (aA V0) (aB V0) 509 510 (by decide) rfl]
  exact (yJ_at (aX V0) (aA V0) (aB V0) (aC V0) 510 511 (by decide) rfl).symm
/-- The contents after step 511. -/
def val512 (V0 : Valuation τ sig (Elt Ideal)) : Valuation τ sig (Elt Ideal) := after (stepOps511 (F := Ideal)) (val511 V0)
theorem val512_main_arg0 (V0 : Valuation τ sig (Elt Ideal)) : val512 V0 (Proc.devRef .tc main_arg0) = aX V0 :=
  (after_keep _ 10 stepOps511_ok main_arg0 (by decide +kernel) (val511 V0)).trans (val511_main_arg0 V0)
theorem val512_main_arg1 (V0 : Valuation τ sig (Elt Ideal)) : val512 V0 (Proc.devRef .tc main_arg1) = aA V0 :=
  (after_keep _ 10 stepOps511_ok main_arg1 (by decide +kernel) (val511 V0)).trans (val511_main_arg1 V0)
theorem val512_main_arg2 (V0 : Valuation τ sig (Elt Ideal)) : val512 V0 (Proc.devRef .tc main_arg2) = aB V0 :=
  (after_keep _ 10 stepOps511_ok main_arg2 (by decide +kernel) (val511 V0)).trans (val511_main_arg2 V0)
theorem val512_main_arg3 (V0 : Valuation τ sig (Elt Ideal)) : val512 V0 (Proc.devRef .tc main_arg3) = aC V0 :=
  (after_keep _ 10 stepOps511_ok main_arg3 (by decide +kernel) (val511 V0)).trans (val511_main_arg3 V0)
theorem val512_main_v3 (V0 : Valuation τ sig (Elt Ideal)) : val512 V0 (Proc.devRef .tc main_v3) = decay (aA V0) :=
  (after_keep _ 10 stepOps511_ok main_v3 (by decide +kernel) (val511 V0)).trans (val511_main_v3 V0)
theorem val512_h (V0 : Valuation τ sig (Elt Ideal)) : val512 V0 (Proc.devRef .tc main_v10235) = hI (aX V0) (aA V0) (aB V0) 511 := by
  refine ((step511_val (val511 V0)).1).trans ?_
  rw [val511_main_arg0 V0, val511_main_v3 V0, val511_main_arg2 V0, val511_h V0]
  exact (hI_at (aX V0) (aA V0) (aB V0) 510 511 (by decide) rfl).symm
theorem val512_y (V0 : Valuation τ sig (Elt Ideal)) : val512 V0 (Proc.devRef .tc main_v10243) = yJ (aX V0) (aA V0) (aB V0) (aC V0) 512 := by
  refine ((step511_val (val511 V0)).2).trans ?_
  rw [val511_main_arg0 V0, val511_main_v3 V0, val511_main_arg2 V0, val511_main_arg3 V0, val511_h V0, val511_y V0]
  rw [← hI_at (aX V0) (aA V0) (aB V0) 510 511 (by decide) rfl]
  exact (yJ_at (aX V0) (aA V0) (aB V0) (aC V0) 511 512 (by decide) rfl).symm

end Cert.ReferenceIdeal.RefRun

end
-- ==== Proof.RefTableJoin.lean ====
/-
  The whole operation list, read through its named suffixes, ends at the contents after the last step: from the contents
  after step t - 1, the operations from step t on end there.
-/
import proofs.«900482_g7700000000000483_dist_ssm_v7x_xy2x2_y_b4_s256_d256_n16_f32_1_alg».proof.Proof.RefTableTail
import proofs.«900482_g7700000000000483_dist_ssm_v7x_xy2x2_y_b4_s256_d256_n16_f32_1_alg».proof.Proof.RefTableChain

set_option Elab.async false
set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

theorem after_opsFrom511_val (V0 : Valuation τ sig (Elt Ideal)) : after (opsFrom511 (F := Ideal)) (val511 V0) = val512 V0 :=
  after_opsFrom511 (val511 V0)
theorem after_opsFrom510_val (V0 : Valuation τ sig (Elt Ideal)) : after (opsFrom510 (F := Ideal)) (val510 V0) = val512 V0 :=
  (after_opsFrom510 (val510 V0)).trans (after_opsFrom511_val V0)
theorem after_opsFrom509_val (V0 : Valuation τ sig (Elt Ideal)) : after (opsFrom509 (F := Ideal)) (val509 V0) = val512 V0 :=
  (after_opsFrom509 (val509 V0)).trans (after_opsFrom510_val V0)
theorem after_opsFrom508_val (V0 : Valuation τ sig (Elt Ideal)) : after (opsFrom508 (F := Ideal)) (val508 V0) = val512 V0 :=
  (after_opsFrom508 (val508 V0)).trans (after_opsFrom509_val V0)
theorem after_opsFrom507_val (V0 : Valuation τ sig (Elt Ideal)) : after (opsFrom507 (F := Ideal)) (val507 V0) = val512 V0 :=
  (after_opsFrom507 (val507 V0)).trans (after_opsFrom508_val V0)
theorem after_opsFrom506_val (V0 : Valuation τ sig (Elt Ideal)) : after (opsFrom506 (F := Ideal)) (val506 V0) = val512 V0 :=
  (after_opsFrom506 (val506 V0)).trans (after_opsFrom507_val V0)
theorem after_opsFrom505_val (V0 : Valuation τ sig (Elt Ideal)) : after (opsFrom505 (F := Ideal)) (val505 V0) = val512 V0 :=
  (after_opsFrom505 (val505 V0)).trans (after_opsFrom506_val V0)
theorem after_opsFrom504_val (V0 : Valuation τ sig (Elt Ideal)) : after (opsFrom504 (F := Ideal)) (val504 V0) = val512 V0 :=
  (after_opsFrom504 (val504 V0)).trans (after_opsFrom505_val V0)
theorem after_opsFrom503_val (V0 : Valuation τ sig (Elt Ideal)) : after (opsFrom503 (F := Ideal)) (val503 V0) = val512 V0 :=
  (after_opsFrom503 (val503 V0)).trans (after_opsFrom504_val V0)
theorem after_opsFrom502_val (V0 : Valuation τ sig (Elt Ideal)) : after (opsFrom502 (F := Ideal)) (val502 V0) = val512 V0 :=
  (after_opsFrom502 (val502 V0)).trans (after_opsFrom503_val V0)
theorem after_opsFrom501_val (V0 : Valuation τ sig (Elt Ideal)) : after (opsFrom501 (F := Ideal)) (val501 V0) = val512 V0 :=
  (after_opsFrom501 (val501 V0)).trans (after_opsFrom502_val V0)
theorem after_opsFrom500_val (V0 : Valuation τ sig (Elt Ideal)) : after (opsFrom500 (F := Ideal)) (val500 V0) = val512 V0 :=
  (after_opsFrom500 (val500 V0)).trans (after_opsFrom501_val V0)
theorem after_opsFrom499_val (V0 : Valuation τ sig (Elt Ideal)) : after (opsFrom499 (F := Ideal)) (val499 V0) = val512 V0 :=
  (after_opsFrom499 (val499 V0)).trans (after_opsFrom500_val V0)
theorem after_opsFrom498_val (V0 : Valuation τ sig (Elt Ideal)) : after (opsFrom498 (F := Ideal)) (val498 V0) = val512 V0 :=
  (after_opsFrom498 (val498 V0)).trans (after_opsFrom499_val V0)
theorem after_opsFrom497_val (V0 : Valuation τ sig (Elt Ideal)) : after (opsFrom497 (F := Ideal)) (val497 V0) = val512 V0 :=
  (after_opsFrom497 (val497 V0)).trans (after_opsFrom498_val V0)
theorem after_opsFrom496_val (V0 : Valuation τ sig (Elt Ideal)) : after (opsFrom496 (F := Ideal)) (val496 V0) = val512 V0 :=
  (after_opsFrom496 (val496 V0)).trans (after_opsFrom497_val V0)
theorem after_opsFrom495_val (V0 : Valuation τ sig (Elt Ideal)) : after (opsFrom495 (F := Ideal)) (val495 V0) = val512 V0 :=
  (after_opsFrom495 (val495 V0)).trans (after_opsFrom496_val V0)
theorem after_opsFrom494_val (V0 : Valuation τ sig (Elt Ideal)) : after (opsFrom494 (F := Ideal)) (val494 V0) = val512 V0 :=
  (after_opsFrom494 (val494 V0)).trans (after_opsFrom495_val V0)
theorem after_opsFrom493_val (V0 : Valuation τ sig (Elt Ideal)) : after (opsFrom493 (F := Ideal)) (val493 V0) = val512 V0 :=
  (after_opsFrom493 (val493 V0)).trans (after_opsFrom494_val V0)
theorem after_opsFrom492_val (V0 : Valuation τ sig (Elt Ideal)) : after (opsFrom492 (F := Ideal)) (val492 V0) = val512 V0 :=
  (after_opsFrom492 (val492 V0)).trans (after_opsFrom493_val V0)
theorem after_opsFrom491_val (V0 : Valuation τ sig (Elt Ideal)) : after (opsFrom491 (F := Ideal)) (val491 V0) = val512 V0 :=
  (after_opsFrom491 (val491 V0)).trans (after_opsFrom492_val V0)
theorem after_opsFrom490_val (V0 : Valuation τ sig (Elt Ideal)) : after (opsFrom490 (F := Ideal)) (val490 V0) = val512 V0 :=
  (after_opsFrom490 (val490 V0)).trans (after_opsFrom491_val V0)
theorem after_opsFrom489_val (V0 : Valuation τ sig (Elt Ideal)) : after (opsFrom489 (F := Ideal)) (val489 V0) = val512 V0 :=
  (after_opsFrom489 (val489 V0)).trans (after_opsFrom490_val V0)
theorem after_opsFrom488_val (V0 : Valuation τ sig (Elt Ideal)) : after (opsFrom488 (F := Ideal)) (val488 V0) = val512 V0 :=
  (after_opsFrom488 (val488 V0)).trans (after_opsFrom489_val V0)
theorem after_opsFrom487_val (V0 : Valuation τ sig (Elt Ideal)) : after (opsFrom487 (F := Ideal)) (val487 V0) = val512 V0 :=
  (after_opsFrom487 (val487 V0)).trans (after_opsFrom488_val V0)
theorem after_opsFrom486_val (V0 : Valuation τ sig (Elt Ideal)) : after (opsFrom486 (F := Ideal)) (val486 V0) = val512 V0 :=
  (after_opsFrom486 (val486 V0)).trans (after_opsFrom487_val V0)
theorem after_opsFrom485_val (V0 : Valuation τ sig (Elt Ideal)) : after (opsFrom485 (F := Ideal)) (val485 V0) = val512 V0 :=
  (after_opsFrom485 (val485 V0)).trans (after_opsFrom486_val V0)
theorem after_opsFrom484_val (V0 : Valuation τ sig (Elt Ideal)) : after (opsFrom484 (F := Ideal)) (val484 V0) = val512 V0 :=
  (after_opsFrom484 (val484 V0)).trans (after_opsFrom485_val V0)
theorem after_opsFrom483_val (V0 : Valuation τ sig (Elt Ideal)) : after (opsFrom483 (F := Ideal)) (val483 V0) = val512 V0 :=
  (after_opsFrom483 (val483 V0)).trans (after_opsFrom484_val V0)
theorem after_opsFrom482_val (V0 : Valuation τ sig (Elt Ideal)) : after (opsFrom482 (F := Ideal)) (val482 V0) = val512 V0 :=
  (after_opsFrom482 (val482 V0)).trans (after_opsFrom483_val V0)
theorem after_opsFrom481_val (V0 : Valuation τ sig (Elt Ideal)) : after (opsFrom481 (F := Ideal)) (val481 V0) = val512 V0 :=
  (after_opsFrom481 (val481 V0)).trans (after_opsFrom482_val V0)
theorem after_opsFrom480_val (V0 : Valuation τ sig (Elt Ideal)) : after (opsFrom480 (F := Ideal)) (val480 V0) = val512 V0 :=
  (after_opsFrom480 (val480 V0)).trans (after_opsFrom481_val V0)
theorem after_opsFrom479_val (V0 : Valuation τ sig (Elt Ideal)) : after (opsFrom479 (F := Ideal)) (val479 V0) = val512 V0 :=
  (after_opsFrom479 (val479 V0)).trans (after_opsFrom480_val V0)
theorem after_opsFrom478_val (V0 : Valuation τ sig (Elt Ideal)) : after (opsFrom478 (F := Ideal)) (val478 V0) = val512 V0 :=
  (after_opsFrom478 (val478 V0)).trans (after_opsFrom479_val V0)
theorem after_opsFrom477_val (V0 : Valuation τ sig (Elt Ideal)) : after (opsFrom477 (F := Ideal)) (val477 V0) = val512 V0 :=
  (after_opsFrom477 (val477 V0)).trans (after_opsFrom478_val V0)
theorem after_opsFrom476_val (V0 : Valuation τ sig (Elt Ideal)) : after (opsFrom476 (F := Ideal)) (val476 V0) = val512 V0 :=
  (after_opsFrom476 (val476 V0)).trans (after_opsFrom477_val V0)
theorem after_opsFrom475_val (V0 : Valuation τ sig (Elt Ideal)) : after (opsFrom475 (F := Ideal)) (val475 V0) = val512 V0 :=
  (after_opsFrom475 (val475 V0)).trans (after_opsFrom476_val V0)
theorem after_opsFrom474_val (V0 : Valuation τ sig (Elt Ideal)) : after (opsFrom474 (F := Ideal)) (val474 V0) = val512 V0 :=
  (after_opsFrom474 (val474 V0)).trans (after_opsFrom475_val V0)
theorem after_opsFrom473_val (V0 : Valuation τ sig (Elt Ideal)) : after (opsFrom473 (F := Ideal)) (val473 V0) = val512 V0 :=
  (after_opsFrom473 (val473 V0)).trans (after_opsFrom474_val V0)
theorem after_opsFrom472_val (V0 : Valuation τ sig (Elt Ideal)) : after (opsFrom472 (F := Ideal)) (val472 V0) = val512 V0 :=
  (after_opsFrom472 (val472 V0)).trans (after_opsFrom473_val V0)
theorem after_opsFrom471_val (V0 : Valuation τ sig (Elt Ideal)) : after (opsFrom471 (F := Ideal)) (val471 V0) = val512 V0 :=
  (after_opsFrom471 (val471 V0)).trans (after_opsFrom472_val V0)
theorem after_opsFrom470_val (V0 : Valuation τ sig (Elt Ideal)) : after (opsFrom470 (F := Ideal)) (val470 V0) = val512 V0 :=
  (after_opsFrom470 (val470 V0)).trans (after_opsFrom471_val V0)
theorem after_opsFrom469_val (V0 : Valuation τ sig (Elt Ideal)) : after (opsFrom469 (F := Ideal)) (val469 V0) = val512 V0 :=
  (after_opsFrom469 (val469 V0)).trans (after_opsFrom470_val V0)
theorem after_opsFrom468_val (V0 : Valuation τ sig (Elt Ideal)) : after (opsFrom468 (F := Ideal)) (val468 V0) = val512 V0 :=
  (after_opsFrom468 (val468 V0)).trans (after_opsFrom469_val V0)
theorem after_opsFrom467_val (V0 : Valuation τ sig (Elt Ideal)) : after (opsFrom467 (F := Ideal)) (val467 V0) = val512 V0 :=
  (after_opsFrom467 (val467 V0)).trans (after_opsFrom468_val V0)
theorem after_opsFrom466_val (V0 : Valuation τ sig (Elt Ideal)) : after (opsFrom466 (F := Ideal)) (val466 V0) = val512 V0 :=
  (after_opsFrom466 (val466 V0)).trans (after_opsFrom467_val V0)
theorem after_opsFrom465_val (V0 : Valuation τ sig (Elt Ideal)) : after (opsFrom465 (F := Ideal)) (val465 V0) = val512 V0 :=
  (after_opsFrom465 (val465 V0)).trans (after_opsFrom466_val V0)
theorem after_opsFrom464_val (V0 : Valuation τ sig (Elt Ideal)) : after (opsFrom464 (F := Ideal)) (val464 V0) = val512 V0 :=
  (after_opsFrom464 (val464 V0)).trans (after_opsFrom465_val V0)
theorem after_opsFrom463_val (V0 : Valuation τ sig (Elt Ideal)) : after (opsFrom463 (F := Ideal)) (val463 V0) = val512 V0 :=
  (after_opsFrom463 (val463 V0)).trans (after_opsFrom464_val V0)
theorem after_opsFrom462_val (V0 : Valuation τ sig (Elt Ideal)) : after (opsFrom462 (F := Ideal)) (val462 V0) = val512 V0 :=
  (after_opsFrom462 (val462 V0)).trans (after_opsFrom463_val V0)
theorem after_opsFrom461_val (V0 : Valuation τ sig (Elt Ideal)) : after (opsFrom461 (F := Ideal)) (val461 V0) = val512 V0 :=
  (after_opsFrom461 (val461 V0)).trans (after_opsFrom462_val V0)
theorem after_opsFrom460_val (V0 : Valuation τ sig (Elt Ideal)) : after (opsFrom460 (F := Ideal)) (val460 V0) = val512 V0 :=
  (after_opsFrom460 (val460 V0)).trans (after_opsFrom461_val V0)
theorem after_opsFrom459_val (V0 : Valuation τ sig (Elt Ideal)) : after (opsFrom459 (F := Ideal)) (val459 V0) = val512 V0 :=
  (after_opsFrom459 (val459 V0)).trans (after_opsFrom460_val V0)
theorem after_opsFrom458_val (V0 : Valuation τ sig (Elt Ideal)) : after (opsFrom458 (F := Ideal)) (val458 V0) = val512 V0 :=
  (after_opsFrom458 (val458 V0)).trans (after_opsFrom459_val V0)
theorem after_opsFrom457_val (V0 : Valuation τ sig (Elt Ideal)) : after (opsFrom457 (F := Ideal)) (val457 V0) = val512 V0 :=
  (after_opsFrom457 (val457 V0)).trans (after_opsFrom458_val V0)
theorem after_opsFrom456_val (V0 : Valuation τ sig (Elt Ideal)) : after (opsFrom456 (F := Ideal)) (val456 V0) = val512 V0 :=
  (after_opsFrom456 (val456 V0)).trans (after_opsFrom457_val V0)
theorem after_opsFrom455_val (V0 : Valuation τ sig (Elt Ideal)) : after (opsFrom455 (F := Ideal)) (val455 V0) = val512 V0 :=
  (after_opsFrom455 (val455 V0)).trans (after_opsFrom456_val V0)
theorem after_opsFrom454_val (V0 : Valuation τ sig (Elt Ideal)) : after (opsFrom454 (F := Ideal)) (val454 V0) = val512 V0 :=
  (after_opsFrom454 (val454 V0)).trans (after_opsFrom455_val V0)
theorem after_opsFrom453_val (V0 : Valuation τ sig (Elt Ideal)) : after (opsFrom453 (F := Ideal)) (val453 V0) = val512 V0 :=
  (after_opsFrom453 (val453 V0)).trans (after_opsFrom454_val V0)
theorem after_opsFrom452_val (V0 : Valuation τ sig (Elt Ideal)) : after (opsFrom452 (F := Ideal)) (val452 V0) = val512 V0 :=
  (after_opsFrom452 (val452 V0)).trans (after_opsFrom453_val V0)
theorem after_opsFrom451_val (V0 : Valuation τ sig (Elt Ideal)) : after (opsFrom451 (F := Ideal)) (val451 V0) = val512 V0 :=
  (after_opsFrom451 (val451 V0)).trans (after_opsFrom452_val V0)
theorem after_opsFrom450_val (V0 : Valuation τ sig (Elt Ideal)) : after (opsFrom450 (F := Ideal)) (val450 V0) = val512 V0 :=
  (after_opsFrom450 (val450 V0)).trans (after_opsFrom451_val V0)
theorem after_opsFrom449_val (V0 : Valuation τ sig (Elt Ideal)) : after (opsFrom449 (F := Ideal)) (val449 V0) = val512 V0 :=
  (after_opsFrom449 (val449 V0)).trans (after_opsFrom450_val V0)
theorem after_opsFrom448_val (V0 : Valuation τ sig (Elt Ideal)) : after (opsFrom448 (F := Ideal)) (val448 V0) = val512 V0 :=
  (after_opsFrom448 (val448 V0)).trans (after_opsFrom449_val V0)
theorem after_opsFrom447_val (V0 : Valuation τ sig (Elt Ideal)) : after (opsFrom447 (F := Ideal)) (val447 V0) = val512 V0 :=
  (after_opsFrom447 (val447 V0)).trans (after_opsFrom448_val V0)
theorem after_opsFrom446_val (V0 : Valuation τ sig (Elt Ideal)) : after (opsFrom446 (F := Ideal)) (val446 V0) = val512 V0 :=
  (after_opsFrom446 (val446 V0)).trans (after_opsFrom447_val V0)
theorem after_opsFrom445_val (V0 : Valuation τ sig (Elt Ideal)) : after (opsFrom445 (F := Ideal)) (val445 V0) = val512 V0 :=
  (after_opsFrom445 (val445 V0)).trans (after_opsFrom446_val V0)
theorem after_opsFrom444_val (V0 : Valuation τ sig (Elt Ideal)) : after (opsFrom444 (F := Ideal)) (val444 V0) = val512 V0 :=
  (after_opsFrom444 (val444 V0)).trans (after_opsFrom445_val V0)
theorem after_opsFrom443_val (V0 : Valuation τ sig (Elt Ideal)) : after (opsFrom443 (F := Ideal)) (val443 V0) = val512 V0 :=
  (after_opsFrom443 (val443 V0)).trans (after_opsFrom444_val V0)
theorem after_opsFrom442_val (V0 : Valuation τ sig (Elt Ideal)) : after (opsFrom442 (F := Ideal)) (val442 V0) = val512 V0 :=
  (after_opsFrom442 (val442 V0)).trans (after_opsFrom443_val V0)
theorem after_opsFrom441_val (V0 : Valuation τ sig (Elt Ideal)) : after (opsFrom441 (F := Ideal)) (val441 V0) = val512 V0 :=
  (after_opsFrom441 (val441 V0)).trans (after_opsFrom442_val V0)
theorem after_opsFrom440_val (V0 : Valuation τ sig (Elt Ideal)) : after (opsFrom440 (F := Ideal)) (val440 V0) = val512 V0 :=
  (after_opsFrom440 (val440 V0)).trans (after_opsFrom441_val V0)
theorem after_opsFrom439_val (V0 : Valuation τ sig (Elt Ideal)) : after (opsFrom439 (F := Ideal)) (val439 V0) = val512 V0 :=
  (after_opsFrom439 (val439 V0)).trans (after_opsFrom440_val V0)
theorem after_opsFrom438_val (V0 : Valuation τ sig (Elt Ideal)) : after (opsFrom438 (F := Ideal)) (val438 V0) = val512 V0 :=
  (after_opsFrom438 (val438 V0)).trans (after_opsFrom439_val V0)
theorem after_opsFrom437_val (V0 : Valuation τ sig (Elt Ideal)) : after (opsFrom437 (F := Ideal)) (val437 V0) = val512 V0 :=
  (after_opsFrom437 (val437 V0)).trans (after_opsFrom438_val V0)
theorem after_opsFrom436_val (V0 : Valuation τ sig (Elt Ideal)) : after (opsFrom436 (F := Ideal)) (val436 V0) = val512 V0 :=
  (after_opsFrom436 (val436 V0)).trans (after_opsFrom437_val V0)
theorem after_opsFrom435_val (V0 : Valuation τ sig (Elt Ideal)) : after (opsFrom435 (F := Ideal)) (val435 V0) = val512 V0 :=
  (after_opsFrom435 (val435 V0)).trans (after_opsFrom436_val V0)
theorem after_opsFrom434_val (V0 : Valuation τ sig (Elt Ideal)) : after (opsFrom434 (F := Ideal)) (val434 V0) = val512 V0 :=
  (after_opsFrom434 (val434 V0)).trans (after_opsFrom435_val V0)
theorem after_opsFrom433_val (V0 : Valuation τ sig (Elt Ideal)) : after (opsFrom433 (F := Ideal)) (val433 V0) = val512 V0 :=
  (after_opsFrom433 (val433 V0)).trans (after_opsFrom434_val V0)
theorem after_opsFrom432_val (V0 : Valuation τ sig (Elt Ideal)) : after (opsFrom432 (F := Ideal)) (val432 V0) = val512 V0 :=
  (after_opsFrom432 (val432 V0)).trans (after_opsFrom433_val V0)
theorem after_opsFrom431_val (V0 : Valuation τ sig (Elt Ideal)) : after (opsFrom431 (F := Ideal)) (val431 V0) = val512 V0 :=
  (after_opsFrom431 (val431 V0)).trans (after_opsFrom432_val V0)
theorem after_opsFrom430_val (V0 : Valuation τ sig (Elt Ideal)) : after (opsFrom430 (F := Ideal)) (val430 V0) = val512 V0 :=
  (after_opsFrom430 (val430 V0)).trans (after_opsFrom431_val V0)
theorem after_opsFrom429_val (V0 : Valuation τ sig (Elt Ideal)) : after (opsFrom429 (F := Ideal)) (val429 V0) = val512 V0 :=
  (after_opsFrom429 (val429 V0)).trans (after_opsFrom430_val V0)
theorem after_opsFrom428_val (V0 : Valuation τ sig (Elt Ideal)) : after (opsFrom428 (F := Ideal)) (val428 V0) = val512 V0 :=
  (after_opsFrom428 (val428 V0)).trans (after_opsFrom429_val V0)
theorem after_opsFrom427_val (V0 : Valuation τ sig (Elt Ideal)) : after (opsFrom427 (F := Ideal)) (val427 V0) = val512 V0 :=
  (after_opsFrom427 (val427 V0)).trans (after_opsFrom428_val V0)
theorem after_opsFrom426_val (V0 : Valuation τ sig (Elt Ideal)) : after (opsFrom426 (F := Ideal)) (val426 V0) = val512 V0 :=
  (after_opsFrom426 (val426 V0)).trans (after_opsFrom427_val V0)
theorem after_opsFrom425_val (V0 : Valuation τ sig (Elt Ideal)) : after (opsFrom425 (F := Ideal)) (val425 V0) = val512 V0 :=
  (after_opsFrom425 (val425 V0)).trans (after_opsFrom426_val V0)
theorem after_opsFrom424_val (V0 : Valuation τ sig (Elt Ideal)) : after (opsFrom424 (F := Ideal)) (val424 V0) = val512 V0 :=
  (after_opsFrom424 (val424 V0)).trans (after_opsFrom425_val V0)
theorem after_opsFrom423_val (V0 : Valuation τ sig (Elt Ideal)) : after (opsFrom423 (F := Ideal)) (val423 V0) = val512 V0 :=
  (after_opsFrom423 (val423 V0)).trans (after_opsFrom424_val V0)
theorem after_opsFrom422_val (V0 : Valuation τ sig (Elt Ideal)) : after (opsFrom422 (F := Ideal)) (val422 V0) = val512 V0 :=
  (after_opsFrom422 (val422 V0)).trans (after_opsFrom423_val V0)
theorem after_opsFrom421_val (V0 : Valuation τ sig (Elt Ideal)) : after (opsFrom421 (F := Ideal)) (val421 V0) = val512 V0 :=
  (after_opsFrom421 (val421 V0)).trans (after_opsFrom422_val V0)
theorem after_opsFrom420_val (V0 : Valuation τ sig (Elt Ideal)) : after (opsFrom420 (F := Ideal)) (val420 V0) = val512 V0 :=
  (after_opsFrom420 (val420 V0)).trans (after_opsFrom421_val V0)
theorem after_opsFrom419_val (V0 : Valuation τ sig (Elt Ideal)) : after (opsFrom419 (F := Ideal)) (val419 V0) = val512 V0 :=
  (after_opsFrom419 (val419 V0)).trans (after_opsFrom420_val V0)
theorem after_opsFrom418_val (V0 : Valuation τ sig (Elt Ideal)) : after (opsFrom418 (F := Ideal)) (val418 V0) = val512 V0 :=
  (after_opsFrom418 (val418 V0)).trans (after_opsFrom419_val V0)
theorem after_opsFrom417_val (V0 : Valuation τ sig (Elt Ideal)) : after (opsFrom417 (F := Ideal)) (val417 V0) = val512 V0 :=
  (after_opsFrom417 (val417 V0)).trans (after_opsFrom418_val V0)
theorem after_opsFrom416_val (V0 : Valuation τ sig (Elt Ideal)) : after (opsFrom416 (F := Ideal)) (val416 V0) = val512 V0 :=
  (after_opsFrom416 (val416 V0)).trans (after_opsFrom417_val V0)
theorem after_opsFrom415_val (V0 : Valuation τ sig (Elt Ideal)) : after (opsFrom415 (F := Ideal)) (val415 V0) = val512 V0 :=
  (after_opsFrom415 (val415 V0)).trans (after_opsFrom416_val V0)
theorem after_opsFrom414_val (V0 : Valuation τ sig (Elt Ideal)) : after (opsFrom414 (F := Ideal)) (val414 V0) = val512 V0 :=
  (after_opsFrom414 (val414 V0)).trans (after_opsFrom415_val V0)
theorem after_opsFrom413_val (V0 : Valuation τ sig (Elt Ideal)) : after (opsFrom413 (F := Ideal)) (val413 V0) = val512 V0 :=
  (after_opsFrom413 (val413 V0)).trans (after_opsFrom414_val V0)
theorem after_opsFrom412_val (V0 : Valuation τ sig (Elt Ideal)) : after (opsFrom412 (F := Ideal)) (val412 V0) = val512 V0 :=
  (after_opsFrom412 (val412 V0)).trans (after_opsFrom413_val V0)
theorem after_opsFrom411_val (V0 : Valuation τ sig (Elt Ideal)) : after (opsFrom411 (F := Ideal)) (val411 V0) = val512 V0 :=
  (after_opsFrom411 (val411 V0)).trans (after_opsFrom412_val V0)
theorem after_opsFrom410_val (V0 : Valuation τ sig (Elt Ideal)) : after (opsFrom410 (F := Ideal)) (val410 V0) = val512 V0 :=
  (after_opsFrom410 (val410 V0)).trans (after_opsFrom411_val V0)
theorem after_opsFrom409_val (V0 : Valuation τ sig (Elt Ideal)) : after (opsFrom409 (F := Ideal)) (val409 V0) = val512 V0 :=
  (after_opsFrom409 (val409 V0)).trans (after_opsFrom410_val V0)
theorem after_opsFrom408_val (V0 : Valuation τ sig (Elt Ideal)) : after (opsFrom408 (F := Ideal)) (val408 V0) = val512 V0 :=
  (after_opsFrom408 (val408 V0)).trans (after_opsFrom409_val V0)
theorem after_opsFrom407_val (V0 : Valuation τ sig (Elt Ideal)) : after (opsFrom407 (F := Ideal)) (val407 V0) = val512 V0 :=
  (after_opsFrom407 (val407 V0)).trans (after_opsFrom408_val V0)
theorem after_opsFrom406_val (V0 : Valuation τ sig (Elt Ideal)) : after (opsFrom406 (F := Ideal)) (val406 V0) = val512 V0 :=
  (after_opsFrom406 (val406 V0)).trans (after_opsFrom407_val V0)
theorem after_opsFrom405_val (V0 : Valuation τ sig (Elt Ideal)) : after (opsFrom405 (F := Ideal)) (val405 V0) = val512 V0 :=
  (after_opsFrom405 (val405 V0)).trans (after_opsFrom406_val V0)
theorem after_opsFrom404_val (V0 : Valuation τ sig (Elt Ideal)) : after (opsFrom404 (F := Ideal)) (val404 V0) = val512 V0 :=
  (after_opsFrom404 (val404 V0)).trans (after_opsFrom405_val V0)
theorem after_opsFrom403_val (V0 : Valuation τ sig (Elt Ideal)) : after (opsFrom403 (F := Ideal)) (val403 V0) = val512 V0 :=
  (after_opsFrom403 (val403 V0)).trans (after_opsFrom404_val V0)
theorem after_opsFrom402_val (V0 : Valuation τ sig (Elt Ideal)) : after (opsFrom402 (F := Ideal)) (val402 V0) = val512 V0 :=
  (after_opsFrom402 (val402 V0)).trans (after_opsFrom403_val V0)
theorem after_opsFrom401_val (V0 : Valuation τ sig (Elt Ideal)) : after (opsFrom401 (F := Ideal)) (val401 V0) = val512 V0 :=
  (after_opsFrom401 (val401 V0)).trans (after_opsFrom402_val V0)
theorem after_opsFrom400_val (V0 : Valuation τ sig (Elt Ideal)) : after (opsFrom400 (F := Ideal)) (val400 V0) = val512 V0 :=
  (after_opsFrom400 (val400 V0)).trans (after_opsFrom401_val V0)
theorem after_opsFrom399_val (V0 : Valuation τ sig (Elt Ideal)) : after (opsFrom399 (F := Ideal)) (val399 V0) = val512 V0 :=
  (after_opsFrom399 (val399 V0)).trans (after_opsFrom400_val V0)
theorem after_opsFrom398_val (V0 : Valuation τ sig (Elt Ideal)) : after (opsFrom398 (F := Ideal)) (val398 V0) = val512 V0 :=
  (after_opsFrom398 (val398 V0)).trans (after_opsFrom399_val V0)
theorem after_opsFrom397_val (V0 : Valuation τ sig (Elt Ideal)) : after (opsFrom397 (F := Ideal)) (val397 V0) = val512 V0 :=
  (after_opsFrom397 (val397 V0)).trans (after_opsFrom398_val V0)
theorem after_opsFrom396_val (V0 : Valuation τ sig (Elt Ideal)) : after (opsFrom396 (F := Ideal)) (val396 V0) = val512 V0 :=
  (after_opsFrom396 (val396 V0)).trans (after_opsFrom397_val V0)
theorem after_opsFrom395_val (V0 : Valuation τ sig (Elt Ideal)) : after (opsFrom395 (F := Ideal)) (val395 V0) = val512 V0 :=
  (after_opsFrom395 (val395 V0)).trans (after_opsFrom396_val V0)
theorem after_opsFrom394_val (V0 : Valuation τ sig (Elt Ideal)) : after (opsFrom394 (F := Ideal)) (val394 V0) = val512 V0 :=
  (after_opsFrom394 (val394 V0)).trans (after_opsFrom395_val V0)
theorem after_opsFrom393_val (V0 : Valuation τ sig (Elt Ideal)) : after (opsFrom393 (F := Ideal)) (val393 V0) = val512 V0 :=
  (after_opsFrom393 (val393 V0)).trans (after_opsFrom394_val V0)
theorem after_opsFrom392_val (V0 : Valuation τ sig (Elt Ideal)) : after (opsFrom392 (F := Ideal)) (val392 V0) = val512 V0 :=
  (after_opsFrom392 (val392 V0)).trans (after_opsFrom393_val V0)
theorem after_opsFrom391_val (V0 : Valuation τ sig (Elt Ideal)) : after (opsFrom391 (F := Ideal)) (val391 V0) = val512 V0 :=
  (after_opsFrom391 (val391 V0)).trans (after_opsFrom392_val V0)
theorem after_opsFrom390_val (V0 : Valuation τ sig (Elt Ideal)) : after (opsFrom390 (F := Ideal)) (val390 V0) = val512 V0 :=
  (after_opsFrom390 (val390 V0)).trans (after_opsFrom391_val V0)
theorem after_opsFrom389_val (V0 : Valuation τ sig (Elt Ideal)) : after (opsFrom389 (F := Ideal)) (val389 V0) = val512 V0 :=
  (after_opsFrom389 (val389 V0)).trans (after_opsFrom390_val V0)
theorem after_opsFrom388_val (V0 : Valuation τ sig (Elt Ideal)) : after (opsFrom388 (F := Ideal)) (val388 V0) = val512 V0 :=
  (after_opsFrom388 (val388 V0)).trans (after_opsFrom389_val V0)
theorem after_opsFrom387_val (V0 : Valuation τ sig (Elt Ideal)) : after (opsFrom387 (F := Ideal)) (val387 V0) = val512 V0 :=
  (after_opsFrom387 (val387 V0)).trans (after_opsFrom388_val V0)
theorem after_opsFrom386_val (V0 : Valuation τ sig (Elt Ideal)) : after (opsFrom386 (F := Ideal)) (val386 V0) = val512 V0 :=
  (after_opsFrom386 (val386 V0)).trans (after_opsFrom387_val V0)
theorem after_opsFrom385_val (V0 : Valuation τ sig (Elt Ideal)) : after (opsFrom385 (F := Ideal)) (val385 V0) = val512 V0 :=
  (after_opsFrom385 (val385 V0)).trans (after_opsFrom386_val V0)
theorem after_opsFrom384_val (V0 : Valuation τ sig (Elt Ideal)) : after (opsFrom384 (F := Ideal)) (val384 V0) = val512 V0 :=
  (after_opsFrom384 (val384 V0)).trans (after_opsFrom385_val V0)
theorem after_opsFrom383_val (V0 : Valuation τ sig (Elt Ideal)) : after (opsFrom383 (F := Ideal)) (val383 V0) = val512 V0 :=
  (after_opsFrom383 (val383 V0)).trans (after_opsFrom384_val V0)
theorem after_opsFrom382_val (V0 : Valuation τ sig (Elt Ideal)) : after (opsFrom382 (F := Ideal)) (val382 V0) = val512 V0 :=
  (after_opsFrom382 (val382 V0)).trans (after_opsFrom383_val V0)
theorem after_opsFrom381_val (V0 : Valuation τ sig (Elt Ideal)) : after (opsFrom381 (F := Ideal)) (val381 V0) = val512 V0 :=
  (after_opsFrom381 (val381 V0)).trans (after_opsFrom382_val V0)
theorem after_opsFrom380_val (V0 : Valuation τ sig (Elt Ideal)) : after (opsFrom380 (F := Ideal)) (val380 V0) = val512 V0 :=
  (after_opsFrom380 (val380 V0)).trans (after_opsFrom381_val V0)
theorem after_opsFrom379_val (V0 : Valuation τ sig (Elt Ideal)) : after (opsFrom379 (F := Ideal)) (val379 V0) = val512 V0 :=
  (after_opsFrom379 (val379 V0)).trans (after_opsFrom380_val V0)
theorem after_opsFrom378_val (V0 : Valuation τ sig (Elt Ideal)) : after (opsFrom378 (F := Ideal)) (val378 V0) = val512 V0 :=
  (after_opsFrom378 (val378 V0)).trans (after_opsFrom379_val V0)
theorem after_opsFrom377_val (V0 : Valuation τ sig (Elt Ideal)) : after (opsFrom377 (F := Ideal)) (val377 V0) = val512 V0 :=
  (after_opsFrom377 (val377 V0)).trans (after_opsFrom378_val V0)
theorem after_opsFrom376_val (V0 : Valuation τ sig (Elt Ideal)) : after (opsFrom376 (F := Ideal)) (val376 V0) = val512 V0 :=
  (after_opsFrom376 (val376 V0)).trans (after_opsFrom377_val V0)
theorem after_opsFrom375_val (V0 : Valuation τ sig (Elt Ideal)) : after (opsFrom375 (F := Ideal)) (val375 V0) = val512 V0 :=
  (after_opsFrom375 (val375 V0)).trans (after_opsFrom376_val V0)
theorem after_opsFrom374_val (V0 : Valuation τ sig (Elt Ideal)) : after (opsFrom374 (F := Ideal)) (val374 V0) = val512 V0 :=
  (after_opsFrom374 (val374 V0)).trans (after_opsFrom375_val V0)
theorem after_opsFrom373_val (V0 : Valuation τ sig (Elt Ideal)) : after (opsFrom373 (F := Ideal)) (val373 V0) = val512 V0 :=
  (after_opsFrom373 (val373 V0)).trans (after_opsFrom374_val V0)
theorem after_opsFrom372_val (V0 : Valuation τ sig (Elt Ideal)) : after (opsFrom372 (F := Ideal)) (val372 V0) = val512 V0 :=
  (after_opsFrom372 (val372 V0)).trans (after_opsFrom373_val V0)
theorem after_opsFrom371_val (V0 : Valuation τ sig (Elt Ideal)) : after (opsFrom371 (F := Ideal)) (val371 V0) = val512 V0 :=
  (after_opsFrom371 (val371 V0)).trans (after_opsFrom372_val V0)
theorem after_opsFrom370_val (V0 : Valuation τ sig (Elt Ideal)) : after (opsFrom370 (F := Ideal)) (val370 V0) = val512 V0 :=
  (after_opsFrom370 (val370 V0)).trans (after_opsFrom371_val V0)
theorem after_opsFrom369_val (V0 : Valuation τ sig (Elt Ideal)) : after (opsFrom369 (F := Ideal)) (val369 V0) = val512 V0 :=
  (after_opsFrom369 (val369 V0)).trans (after_opsFrom370_val V0)
theorem after_opsFrom368_val (V0 : Valuation τ sig (Elt Ideal)) : after (opsFrom368 (F := Ideal)) (val368 V0) = val512 V0 :=
  (after_opsFrom368 (val368 V0)).trans (after_opsFrom369_val V0)
theorem after_opsFrom367_val (V0 : Valuation τ sig (Elt Ideal)) : after (opsFrom367 (F := Ideal)) (val367 V0) = val512 V0 :=
  (after_opsFrom367 (val367 V0)).trans (after_opsFrom368_val V0)
theorem after_opsFrom366_val (V0 : Valuation τ sig (Elt Ideal)) : after (opsFrom366 (F := Ideal)) (val366 V0) = val512 V0 :=
  (after_opsFrom366 (val366 V0)).trans (after_opsFrom367_val V0)
theorem after_opsFrom365_val (V0 : Valuation τ sig (Elt Ideal)) : after (opsFrom365 (F := Ideal)) (val365 V0) = val512 V0 :=
  (after_opsFrom365 (val365 V0)).trans (after_opsFrom366_val V0)
theorem after_opsFrom364_val (V0 : Valuation τ sig (Elt Ideal)) : after (opsFrom364 (F := Ideal)) (val364 V0) = val512 V0 :=
  (after_opsFrom364 (val364 V0)).trans (after_opsFrom365_val V0)
theorem after_opsFrom363_val (V0 : Valuation τ sig (Elt Ideal)) : after (opsFrom363 (F := Ideal)) (val363 V0) = val512 V0 :=
  (after_opsFrom363 (val363 V0)).trans (after_opsFrom364_val V0)
theorem after_opsFrom362_val (V0 : Valuation τ sig (Elt Ideal)) : after (opsFrom362 (F := Ideal)) (val362 V0) = val512 V0 :=
  (after_opsFrom362 (val362 V0)).trans (after_opsFrom363_val V0)
theorem after_opsFrom361_val (V0 : Valuation τ sig (Elt Ideal)) : after (opsFrom361 (F := Ideal)) (val361 V0) = val512 V0 :=
  (after_opsFrom361 (val361 V0)).trans (after_opsFrom362_val V0)
theorem after_opsFrom360_val (V0 : Valuation τ sig (Elt Ideal)) : after (opsFrom360 (F := Ideal)) (val360 V0) = val512 V0 :=
  (after_opsFrom360 (val360 V0)).trans (after_opsFrom361_val V0)
theorem after_opsFrom359_val (V0 : Valuation τ sig (Elt Ideal)) : after (opsFrom359 (F := Ideal)) (val359 V0) = val512 V0 :=
  (after_opsFrom359 (val359 V0)).trans (after_opsFrom360_val V0)
theorem after_opsFrom358_val (V0 : Valuation τ sig (Elt Ideal)) : after (opsFrom358 (F := Ideal)) (val358 V0) = val512 V0 :=
  (after_opsFrom358 (val358 V0)).trans (after_opsFrom359_val V0)
theorem after_opsFrom357_val (V0 : Valuation τ sig (Elt Ideal)) : after (opsFrom357 (F := Ideal)) (val357 V0) = val512 V0 :=
  (after_opsFrom357 (val357 V0)).trans (after_opsFrom358_val V0)
theorem after_opsFrom356_val (V0 : Valuation τ sig (Elt Ideal)) : after (opsFrom356 (F := Ideal)) (val356 V0) = val512 V0 :=
  (after_opsFrom356 (val356 V0)).trans (after_opsFrom357_val V0)
theorem after_opsFrom355_val (V0 : Valuation τ sig (Elt Ideal)) : after (opsFrom355 (F := Ideal)) (val355 V0) = val512 V0 :=
  (after_opsFrom355 (val355 V0)).trans (after_opsFrom356_val V0)
theorem after_opsFrom354_val (V0 : Valuation τ sig (Elt Ideal)) : after (opsFrom354 (F := Ideal)) (val354 V0) = val512 V0 :=
  (after_opsFrom354 (val354 V0)).trans (after_opsFrom355_val V0)
theorem after_opsFrom353_val (V0 : Valuation τ sig (Elt Ideal)) : after (opsFrom353 (F := Ideal)) (val353 V0) = val512 V0 :=
  (after_opsFrom353 (val353 V0)).trans (after_opsFrom354_val V0)
theorem after_opsFrom352_val (V0 : Valuation τ sig (Elt Ideal)) : after (opsFrom352 (F := Ideal)) (val352 V0) = val512 V0 :=
  (after_opsFrom352 (val352 V0)).trans (after_opsFrom353_val V0)
theorem after_opsFrom351_val (V0 : Valuation τ sig (Elt Ideal)) : after (opsFrom351 (F := Ideal)) (val351 V0) = val512 V0 :=
  (after_opsFrom351 (val351 V0)).trans (after_opsFrom352_val V0)
theorem after_opsFrom350_val (V0 : Valuation τ sig (Elt Ideal)) : after (opsFrom350 (F := Ideal)) (val350 V0) = val512 V0 :=
  (after_opsFrom350 (val350 V0)).trans (after_opsFrom351_val V0)
theorem after_opsFrom349_val (V0 : Valuation τ sig (Elt Ideal)) : after (opsFrom349 (F := Ideal)) (val349 V0) = val512 V0 :=
  (after_opsFrom349 (val349 V0)).trans (after_opsFrom350_val V0)
theorem after_opsFrom348_val (V0 : Valuation τ sig (Elt Ideal)) : after (opsFrom348 (F := Ideal)) (val348 V0) = val512 V0 :=
  (after_opsFrom348 (val348 V0)).trans (after_opsFrom349_val V0)
theorem after_opsFrom347_val (V0 : Valuation τ sig (Elt Ideal)) : after (opsFrom347 (F := Ideal)) (val347 V0) = val512 V0 :=
  (after_opsFrom347 (val347 V0)).trans (after_opsFrom348_val V0)
theorem after_opsFrom346_val (V0 : Valuation τ sig (Elt Ideal)) : after (opsFrom346 (F := Ideal)) (val346 V0) = val512 V0 :=
  (after_opsFrom346 (val346 V0)).trans (after_opsFrom347_val V0)
theorem after_opsFrom345_val (V0 : Valuation τ sig (Elt Ideal)) : after (opsFrom345 (F := Ideal)) (val345 V0) = val512 V0 :=
  (after_opsFrom345 (val345 V0)).trans (after_opsFrom346_val V0)
theorem after_opsFrom344_val (V0 : Valuation τ sig (Elt Ideal)) : after (opsFrom344 (F := Ideal)) (val344 V0) = val512 V0 :=
  (after_opsFrom344 (val344 V0)).trans (after_opsFrom345_val V0)
theorem after_opsFrom343_val (V0 : Valuation τ sig (Elt Ideal)) : after (opsFrom343 (F := Ideal)) (val343 V0) = val512 V0 :=
  (after_opsFrom343 (val343 V0)).trans (after_opsFrom344_val V0)
theorem after_opsFrom342_val (V0 : Valuation τ sig (Elt Ideal)) : after (opsFrom342 (F := Ideal)) (val342 V0) = val512 V0 :=
  (after_opsFrom342 (val342 V0)).trans (after_opsFrom343_val V0)
theorem after_opsFrom341_val (V0 : Valuation τ sig (Elt Ideal)) : after (opsFrom341 (F := Ideal)) (val341 V0) = val512 V0 :=
  (after_opsFrom341 (val341 V0)).trans (after_opsFrom342_val V0)
theorem after_opsFrom340_val (V0 : Valuation τ sig (Elt Ideal)) : after (opsFrom340 (F := Ideal)) (val340 V0) = val512 V0 :=
  (after_opsFrom340 (val340 V0)).trans (after_opsFrom341_val V0)
theorem after_opsFrom339_val (V0 : Valuation τ sig (Elt Ideal)) : after (opsFrom339 (F := Ideal)) (val339 V0) = val512 V0 :=
  (after_opsFrom339 (val339 V0)).trans (after_opsFrom340_val V0)
theorem after_opsFrom338_val (V0 : Valuation τ sig (Elt Ideal)) : after (opsFrom338 (F := Ideal)) (val338 V0) = val512 V0 :=
  (after_opsFrom338 (val338 V0)).trans (after_opsFrom339_val V0)
theorem after_opsFrom337_val (V0 : Valuation τ sig (Elt Ideal)) : after (opsFrom337 (F := Ideal)) (val337 V0) = val512 V0 :=
  (after_opsFrom337 (val337 V0)).trans (after_opsFrom338_val V0)
theorem after_opsFrom336_val (V0 : Valuation τ sig (Elt Ideal)) : after (opsFrom336 (F := Ideal)) (val336 V0) = val512 V0 :=
  (after_opsFrom336 (val336 V0)).trans (after_opsFrom337_val V0)
theorem after_opsFrom335_val (V0 : Valuation τ sig (Elt Ideal)) : after (opsFrom335 (F := Ideal)) (val335 V0) = val512 V0 :=
  (after_opsFrom335 (val335 V0)).trans (after_opsFrom336_val V0)
theorem after_opsFrom334_val (V0 : Valuation τ sig (Elt Ideal)) : after (opsFrom334 (F := Ideal)) (val334 V0) = val512 V0 :=
  (after_opsFrom334 (val334 V0)).trans (after_opsFrom335_val V0)
theorem after_opsFrom333_val (V0 : Valuation τ sig (Elt Ideal)) : after (opsFrom333 (F := Ideal)) (val333 V0) = val512 V0 :=
  (after_opsFrom333 (val333 V0)).trans (after_opsFrom334_val V0)
theorem after_opsFrom332_val (V0 : Valuation τ sig (Elt Ideal)) : after (opsFrom332 (F := Ideal)) (val332 V0) = val512 V0 :=
  (after_opsFrom332 (val332 V0)).trans (after_opsFrom333_val V0)
theorem after_opsFrom331_val (V0 : Valuation τ sig (Elt Ideal)) : after (opsFrom331 (F := Ideal)) (val331 V0) = val512 V0 :=
  (after_opsFrom331 (val331 V0)).trans (after_opsFrom332_val V0)
theorem after_opsFrom330_val (V0 : Valuation τ sig (Elt Ideal)) : after (opsFrom330 (F := Ideal)) (val330 V0) = val512 V0 :=
  (after_opsFrom330 (val330 V0)).trans (after_opsFrom331_val V0)
theorem after_opsFrom329_val (V0 : Valuation τ sig (Elt Ideal)) : after (opsFrom329 (F := Ideal)) (val329 V0) = val512 V0 :=
  (after_opsFrom329 (val329 V0)).trans (after_opsFrom330_val V0)
theorem after_opsFrom328_val (V0 : Valuation τ sig (Elt Ideal)) : after (opsFrom328 (F := Ideal)) (val328 V0) = val512 V0 :=
  (after_opsFrom328 (val328 V0)).trans (after_opsFrom329_val V0)
theorem after_opsFrom327_val (V0 : Valuation τ sig (Elt Ideal)) : after (opsFrom327 (F := Ideal)) (val327 V0) = val512 V0 :=
  (after_opsFrom327 (val327 V0)).trans (after_opsFrom328_val V0)
theorem after_opsFrom326_val (V0 : Valuation τ sig (Elt Ideal)) : after (opsFrom326 (F := Ideal)) (val326 V0) = val512 V0 :=
  (after_opsFrom326 (val326 V0)).trans (after_opsFrom327_val V0)
theorem after_opsFrom325_val (V0 : Valuation τ sig (Elt Ideal)) : after (opsFrom325 (F := Ideal)) (val325 V0) = val512 V0 :=
  (after_opsFrom325 (val325 V0)).trans (after_opsFrom326_val V0)
theorem after_opsFrom324_val (V0 : Valuation τ sig (Elt Ideal)) : after (opsFrom324 (F := Ideal)) (val324 V0) = val512 V0 :=
  (after_opsFrom324 (val324 V0)).trans (after_opsFrom325_val V0)
theorem after_opsFrom323_val (V0 : Valuation τ sig (Elt Ideal)) : after (opsFrom323 (F := Ideal)) (val323 V0) = val512 V0 :=
  (after_opsFrom323 (val323 V0)).trans (after_opsFrom324_val V0)
theorem after_opsFrom322_val (V0 : Valuation τ sig (Elt Ideal)) : after (opsFrom322 (F := Ideal)) (val322 V0) = val512 V0 :=
  (after_opsFrom322 (val322 V0)).trans (after_opsFrom323_val V0)
theorem after_opsFrom321_val (V0 : Valuation τ sig (Elt Ideal)) : after (opsFrom321 (F := Ideal)) (val321 V0) = val512 V0 :=
  (after_opsFrom321 (val321 V0)).trans (after_opsFrom322_val V0)
theorem after_opsFrom320_val (V0 : Valuation τ sig (Elt Ideal)) : after (opsFrom320 (F := Ideal)) (val320 V0) = val512 V0 :=
  (after_opsFrom320 (val320 V0)).trans (after_opsFrom321_val V0)
theorem after_opsFrom319_val (V0 : Valuation τ sig (Elt Ideal)) : after (opsFrom319 (F := Ideal)) (val319 V0) = val512 V0 :=
  (after_opsFrom319 (val319 V0)).trans (after_opsFrom320_val V0)
theorem after_opsFrom318_val (V0 : Valuation τ sig (Elt Ideal)) : after (opsFrom318 (F := Ideal)) (val318 V0) = val512 V0 :=
  (after_opsFrom318 (val318 V0)).trans (after_opsFrom319_val V0)
theorem after_opsFrom317_val (V0 : Valuation τ sig (Elt Ideal)) : after (opsFrom317 (F := Ideal)) (val317 V0) = val512 V0 :=
  (after_opsFrom317 (val317 V0)).trans (after_opsFrom318_val V0)
theorem after_opsFrom316_val (V0 : Valuation τ sig (Elt Ideal)) : after (opsFrom316 (F := Ideal)) (val316 V0) = val512 V0 :=
  (after_opsFrom316 (val316 V0)).trans (after_opsFrom317_val V0)
theorem after_opsFrom315_val (V0 : Valuation τ sig (Elt Ideal)) : after (opsFrom315 (F := Ideal)) (val315 V0) = val512 V0 :=
  (after_opsFrom315 (val315 V0)).trans (after_opsFrom316_val V0)
theorem after_opsFrom314_val (V0 : Valuation τ sig (Elt Ideal)) : after (opsFrom314 (F := Ideal)) (val314 V0) = val512 V0 :=
  (after_opsFrom314 (val314 V0)).trans (after_opsFrom315_val V0)
theorem after_opsFrom313_val (V0 : Valuation τ sig (Elt Ideal)) : after (opsFrom313 (F := Ideal)) (val313 V0) = val512 V0 :=
  (after_opsFrom313 (val313 V0)).trans (after_opsFrom314_val V0)
theorem after_opsFrom312_val (V0 : Valuation τ sig (Elt Ideal)) : after (opsFrom312 (F := Ideal)) (val312 V0) = val512 V0 :=
  (after_opsFrom312 (val312 V0)).trans (after_opsFrom313_val V0)
theorem after_opsFrom311_val (V0 : Valuation τ sig (Elt Ideal)) : after (opsFrom311 (F := Ideal)) (val311 V0) = val512 V0 :=
  (after_opsFrom311 (val311 V0)).trans (after_opsFrom312_val V0)
theorem after_opsFrom310_val (V0 : Valuation τ sig (Elt Ideal)) : after (opsFrom310 (F := Ideal)) (val310 V0) = val512 V0 :=
  (after_opsFrom310 (val310 V0)).trans (after_opsFrom311_val V0)
theorem after_opsFrom309_val (V0 : Valuation τ sig (Elt Ideal)) : after (opsFrom309 (F := Ideal)) (val309 V0) = val512 V0 :=
  (after_opsFrom309 (val309 V0)).trans (after_opsFrom310_val V0)
theorem after_opsFrom308_val (V0 : Valuation τ sig (Elt Ideal)) : after (opsFrom308 (F := Ideal)) (val308 V0) = val512 V0 :=
  (after_opsFrom308 (val308 V0)).trans (after_opsFrom309_val V0)
theorem after_opsFrom307_val (V0 : Valuation τ sig (Elt Ideal)) : after (opsFrom307 (F := Ideal)) (val307 V0) = val512 V0 :=
  (after_opsFrom307 (val307 V0)).trans (after_opsFrom308_val V0)
theorem after_opsFrom306_val (V0 : Valuation τ sig (Elt Ideal)) : after (opsFrom306 (F := Ideal)) (val306 V0) = val512 V0 :=
  (after_opsFrom306 (val306 V0)).trans (after_opsFrom307_val V0)
theorem after_opsFrom305_val (V0 : Valuation τ sig (Elt Ideal)) : after (opsFrom305 (F := Ideal)) (val305 V0) = val512 V0 :=
  (after_opsFrom305 (val305 V0)).trans (after_opsFrom306_val V0)
theorem after_opsFrom304_val (V0 : Valuation τ sig (Elt Ideal)) : after (opsFrom304 (F := Ideal)) (val304 V0) = val512 V0 :=
  (after_opsFrom304 (val304 V0)).trans (after_opsFrom305_val V0)
theorem after_opsFrom303_val (V0 : Valuation τ sig (Elt Ideal)) : after (opsFrom303 (F := Ideal)) (val303 V0) = val512 V0 :=
  (after_opsFrom303 (val303 V0)).trans (after_opsFrom304_val V0)
theorem after_opsFrom302_val (V0 : Valuation τ sig (Elt Ideal)) : after (opsFrom302 (F := Ideal)) (val302 V0) = val512 V0 :=
  (after_opsFrom302 (val302 V0)).trans (after_opsFrom303_val V0)
theorem after_opsFrom301_val (V0 : Valuation τ sig (Elt Ideal)) : after (opsFrom301 (F := Ideal)) (val301 V0) = val512 V0 :=
  (after_opsFrom301 (val301 V0)).trans (after_opsFrom302_val V0)
theorem after_opsFrom300_val (V0 : Valuation τ sig (Elt Ideal)) : after (opsFrom300 (F := Ideal)) (val300 V0) = val512 V0 :=
  (after_opsFrom300 (val300 V0)).trans (after_opsFrom301_val V0)
theorem after_opsFrom299_val (V0 : Valuation τ sig (Elt Ideal)) : after (opsFrom299 (F := Ideal)) (val299 V0) = val512 V0 :=
  (after_opsFrom299 (val299 V0)).trans (after_opsFrom300_val V0)
theorem after_opsFrom298_val (V0 : Valuation τ sig (Elt Ideal)) : after (opsFrom298 (F := Ideal)) (val298 V0) = val512 V0 :=
  (after_opsFrom298 (val298 V0)).trans (after_opsFrom299_val V0)
theorem after_opsFrom297_val (V0 : Valuation τ sig (Elt Ideal)) : after (opsFrom297 (F := Ideal)) (val297 V0) = val512 V0 :=
  (after_opsFrom297 (val297 V0)).trans (after_opsFrom298_val V0)
theorem after_opsFrom296_val (V0 : Valuation τ sig (Elt Ideal)) : after (opsFrom296 (F := Ideal)) (val296 V0) = val512 V0 :=
  (after_opsFrom296 (val296 V0)).trans (after_opsFrom297_val V0)
theorem after_opsFrom295_val (V0 : Valuation τ sig (Elt Ideal)) : after (opsFrom295 (F := Ideal)) (val295 V0) = val512 V0 :=
  (after_opsFrom295 (val295 V0)).trans (after_opsFrom296_val V0)
theorem after_opsFrom294_val (V0 : Valuation τ sig (Elt Ideal)) : after (opsFrom294 (F := Ideal)) (val294 V0) = val512 V0 :=
  (after_opsFrom294 (val294 V0)).trans (after_opsFrom295_val V0)
theorem after_opsFrom293_val (V0 : Valuation τ sig (Elt Ideal)) : after (opsFrom293 (F := Ideal)) (val293 V0) = val512 V0 :=
  (after_opsFrom293 (val293 V0)).trans (after_opsFrom294_val V0)
theorem after_opsFrom292_val (V0 : Valuation τ sig (Elt Ideal)) : after (opsFrom292 (F := Ideal)) (val292 V0) = val512 V0 :=
  (after_opsFrom292 (val292 V0)).trans (after_opsFrom293_val V0)
theorem after_opsFrom291_val (V0 : Valuation τ sig (Elt Ideal)) : after (opsFrom291 (F := Ideal)) (val291 V0) = val512 V0 :=
  (after_opsFrom291 (val291 V0)).trans (after_opsFrom292_val V0)
theorem after_opsFrom290_val (V0 : Valuation τ sig (Elt Ideal)) : after (opsFrom290 (F := Ideal)) (val290 V0) = val512 V0 :=
  (after_opsFrom290 (val290 V0)).trans (after_opsFrom291_val V0)
theorem after_opsFrom289_val (V0 : Valuation τ sig (Elt Ideal)) : after (opsFrom289 (F := Ideal)) (val289 V0) = val512 V0 :=
  (after_opsFrom289 (val289 V0)).trans (after_opsFrom290_val V0)
theorem after_opsFrom288_val (V0 : Valuation τ sig (Elt Ideal)) : after (opsFrom288 (F := Ideal)) (val288 V0) = val512 V0 :=
  (after_opsFrom288 (val288 V0)).trans (after_opsFrom289_val V0)
theorem after_opsFrom287_val (V0 : Valuation τ sig (Elt Ideal)) : after (opsFrom287 (F := Ideal)) (val287 V0) = val512 V0 :=
  (after_opsFrom287 (val287 V0)).trans (after_opsFrom288_val V0)
theorem after_opsFrom286_val (V0 : Valuation τ sig (Elt Ideal)) : after (opsFrom286 (F := Ideal)) (val286 V0) = val512 V0 :=
  (after_opsFrom286 (val286 V0)).trans (after_opsFrom287_val V0)
theorem after_opsFrom285_val (V0 : Valuation τ sig (Elt Ideal)) : after (opsFrom285 (F := Ideal)) (val285 V0) = val512 V0 :=
  (after_opsFrom285 (val285 V0)).trans (after_opsFrom286_val V0)
theorem after_opsFrom284_val (V0 : Valuation τ sig (Elt Ideal)) : after (opsFrom284 (F := Ideal)) (val284 V0) = val512 V0 :=
  (after_opsFrom284 (val284 V0)).trans (after_opsFrom285_val V0)
theorem after_opsFrom283_val (V0 : Valuation τ sig (Elt Ideal)) : after (opsFrom283 (F := Ideal)) (val283 V0) = val512 V0 :=
  (after_opsFrom283 (val283 V0)).trans (after_opsFrom284_val V0)
theorem after_opsFrom282_val (V0 : Valuation τ sig (Elt Ideal)) : after (opsFrom282 (F := Ideal)) (val282 V0) = val512 V0 :=
  (after_opsFrom282 (val282 V0)).trans (after_opsFrom283_val V0)
theorem after_opsFrom281_val (V0 : Valuation τ sig (Elt Ideal)) : after (opsFrom281 (F := Ideal)) (val281 V0) = val512 V0 :=
  (after_opsFrom281 (val281 V0)).trans (after_opsFrom282_val V0)
theorem after_opsFrom280_val (V0 : Valuation τ sig (Elt Ideal)) : after (opsFrom280 (F := Ideal)) (val280 V0) = val512 V0 :=
  (after_opsFrom280 (val280 V0)).trans (after_opsFrom281_val V0)
theorem after_opsFrom279_val (V0 : Valuation τ sig (Elt Ideal)) : after (opsFrom279 (F := Ideal)) (val279 V0) = val512 V0 :=
  (after_opsFrom279 (val279 V0)).trans (after_opsFrom280_val V0)
theorem after_opsFrom278_val (V0 : Valuation τ sig (Elt Ideal)) : after (opsFrom278 (F := Ideal)) (val278 V0) = val512 V0 :=
  (after_opsFrom278 (val278 V0)).trans (after_opsFrom279_val V0)
theorem after_opsFrom277_val (V0 : Valuation τ sig (Elt Ideal)) : after (opsFrom277 (F := Ideal)) (val277 V0) = val512 V0 :=
  (after_opsFrom277 (val277 V0)).trans (after_opsFrom278_val V0)
theorem after_opsFrom276_val (V0 : Valuation τ sig (Elt Ideal)) : after (opsFrom276 (F := Ideal)) (val276 V0) = val512 V0 :=
  (after_opsFrom276 (val276 V0)).trans (after_opsFrom277_val V0)
theorem after_opsFrom275_val (V0 : Valuation τ sig (Elt Ideal)) : after (opsFrom275 (F := Ideal)) (val275 V0) = val512 V0 :=
  (after_opsFrom275 (val275 V0)).trans (after_opsFrom276_val V0)
theorem after_opsFrom274_val (V0 : Valuation τ sig (Elt Ideal)) : after (opsFrom274 (F := Ideal)) (val274 V0) = val512 V0 :=
  (after_opsFrom274 (val274 V0)).trans (after_opsFrom275_val V0)
theorem after_opsFrom273_val (V0 : Valuation τ sig (Elt Ideal)) : after (opsFrom273 (F := Ideal)) (val273 V0) = val512 V0 :=
  (after_opsFrom273 (val273 V0)).trans (after_opsFrom274_val V0)
theorem after_opsFrom272_val (V0 : Valuation τ sig (Elt Ideal)) : after (opsFrom272 (F := Ideal)) (val272 V0) = val512 V0 :=
  (after_opsFrom272 (val272 V0)).trans (after_opsFrom273_val V0)
theorem after_opsFrom271_val (V0 : Valuation τ sig (Elt Ideal)) : after (opsFrom271 (F := Ideal)) (val271 V0) = val512 V0 :=
  (after_opsFrom271 (val271 V0)).trans (after_opsFrom272_val V0)
theorem after_opsFrom270_val (V0 : Valuation τ sig (Elt Ideal)) : after (opsFrom270 (F := Ideal)) (val270 V0) = val512 V0 :=
  (after_opsFrom270 (val270 V0)).trans (after_opsFrom271_val V0)
theorem after_opsFrom269_val (V0 : Valuation τ sig (Elt Ideal)) : after (opsFrom269 (F := Ideal)) (val269 V0) = val512 V0 :=
  (after_opsFrom269 (val269 V0)).trans (after_opsFrom270_val V0)
theorem after_opsFrom268_val (V0 : Valuation τ sig (Elt Ideal)) : after (opsFrom268 (F := Ideal)) (val268 V0) = val512 V0 :=
  (after_opsFrom268 (val268 V0)).trans (after_opsFrom269_val V0)
theorem after_opsFrom267_val (V0 : Valuation τ sig (Elt Ideal)) : after (opsFrom267 (F := Ideal)) (val267 V0) = val512 V0 :=
  (after_opsFrom267 (val267 V0)).trans (after_opsFrom268_val V0)
theorem after_opsFrom266_val (V0 : Valuation τ sig (Elt Ideal)) : after (opsFrom266 (F := Ideal)) (val266 V0) = val512 V0 :=
  (after_opsFrom266 (val266 V0)).trans (after_opsFrom267_val V0)
theorem after_opsFrom265_val (V0 : Valuation τ sig (Elt Ideal)) : after (opsFrom265 (F := Ideal)) (val265 V0) = val512 V0 :=
  (after_opsFrom265 (val265 V0)).trans (after_opsFrom266_val V0)
theorem after_opsFrom264_val (V0 : Valuation τ sig (Elt Ideal)) : after (opsFrom264 (F := Ideal)) (val264 V0) = val512 V0 :=
  (after_opsFrom264 (val264 V0)).trans (after_opsFrom265_val V0)
theorem after_opsFrom263_val (V0 : Valuation τ sig (Elt Ideal)) : after (opsFrom263 (F := Ideal)) (val263 V0) = val512 V0 :=
  (after_opsFrom263 (val263 V0)).trans (after_opsFrom264_val V0)
theorem after_opsFrom262_val (V0 : Valuation τ sig (Elt Ideal)) : after (opsFrom262 (F := Ideal)) (val262 V0) = val512 V0 :=
  (after_opsFrom262 (val262 V0)).trans (after_opsFrom263_val V0)
theorem after_opsFrom261_val (V0 : Valuation τ sig (Elt Ideal)) : after (opsFrom261 (F := Ideal)) (val261 V0) = val512 V0 :=
  (after_opsFrom261 (val261 V0)).trans (after_opsFrom262_val V0)
theorem after_opsFrom260_val (V0 : Valuation τ sig (Elt Ideal)) : after (opsFrom260 (F := Ideal)) (val260 V0) = val512 V0 :=
  (after_opsFrom260 (val260 V0)).trans (after_opsFrom261_val V0)
theorem after_opsFrom259_val (V0 : Valuation τ sig (Elt Ideal)) : after (opsFrom259 (F := Ideal)) (val259 V0) = val512 V0 :=
  (after_opsFrom259 (val259 V0)).trans (after_opsFrom260_val V0)
theorem after_opsFrom258_val (V0 : Valuation τ sig (Elt Ideal)) : after (opsFrom258 (F := Ideal)) (val258 V0) = val512 V0 :=
  (after_opsFrom258 (val258 V0)).trans (after_opsFrom259_val V0)
theorem after_opsFrom257_val (V0 : Valuation τ sig (Elt Ideal)) : after (opsFrom257 (F := Ideal)) (val257 V0) = val512 V0 :=
  (after_opsFrom257 (val257 V0)).trans (after_opsFrom258_val V0)
theorem after_opsFrom256_val (V0 : Valuation τ sig (Elt Ideal)) : after (opsFrom256 (F := Ideal)) (val256 V0) = val512 V0 :=
  (after_opsFrom256 (val256 V0)).trans (after_opsFrom257_val V0)
theorem after_opsFrom255_val (V0 : Valuation τ sig (Elt Ideal)) : after (opsFrom255 (F := Ideal)) (val255 V0) = val512 V0 :=
  (after_opsFrom255 (val255 V0)).trans (after_opsFrom256_val V0)
theorem after_opsFrom254_val (V0 : Valuation τ sig (Elt Ideal)) : after (opsFrom254 (F := Ideal)) (val254 V0) = val512 V0 :=
  (after_opsFrom254 (val254 V0)).trans (after_opsFrom255_val V0)
theorem after_opsFrom253_val (V0 : Valuation τ sig (Elt Ideal)) : after (opsFrom253 (F := Ideal)) (val253 V0) = val512 V0 :=
  (after_opsFrom253 (val253 V0)).trans (after_opsFrom254_val V0)
theorem after_opsFrom252_val (V0 : Valuation τ sig (Elt Ideal)) : after (opsFrom252 (F := Ideal)) (val252 V0) = val512 V0 :=
  (after_opsFrom252 (val252 V0)).trans (after_opsFrom253_val V0)
theorem after_opsFrom251_val (V0 : Valuation τ sig (Elt Ideal)) : after (opsFrom251 (F := Ideal)) (val251 V0) = val512 V0 :=
  (after_opsFrom251 (val251 V0)).trans (after_opsFrom252_val V0)
theorem after_opsFrom250_val (V0 : Valuation τ sig (Elt Ideal)) : after (opsFrom250 (F := Ideal)) (val250 V0) = val512 V0 :=
  (after_opsFrom250 (val250 V0)).trans (after_opsFrom251_val V0)
theorem after_opsFrom249_val (V0 : Valuation τ sig (Elt Ideal)) : after (opsFrom249 (F := Ideal)) (val249 V0) = val512 V0 :=
  (after_opsFrom249 (val249 V0)).trans (after_opsFrom250_val V0)
theorem after_opsFrom248_val (V0 : Valuation τ sig (Elt Ideal)) : after (opsFrom248 (F := Ideal)) (val248 V0) = val512 V0 :=
  (after_opsFrom248 (val248 V0)).trans (after_opsFrom249_val V0)
theorem after_opsFrom247_val (V0 : Valuation τ sig (Elt Ideal)) : after (opsFrom247 (F := Ideal)) (val247 V0) = val512 V0 :=
  (after_opsFrom247 (val247 V0)).trans (after_opsFrom248_val V0)
theorem after_opsFrom246_val (V0 : Valuation τ sig (Elt Ideal)) : after (opsFrom246 (F := Ideal)) (val246 V0) = val512 V0 :=
  (after_opsFrom246 (val246 V0)).trans (after_opsFrom247_val V0)
theorem after_opsFrom245_val (V0 : Valuation τ sig (Elt Ideal)) : after (opsFrom245 (F := Ideal)) (val245 V0) = val512 V0 :=
  (after_opsFrom245 (val245 V0)).trans (after_opsFrom246_val V0)
theorem after_opsFrom244_val (V0 : Valuation τ sig (Elt Ideal)) : after (opsFrom244 (F := Ideal)) (val244 V0) = val512 V0 :=
  (after_opsFrom244 (val244 V0)).trans (after_opsFrom245_val V0)
theorem after_opsFrom243_val (V0 : Valuation τ sig (Elt Ideal)) : after (opsFrom243 (F := Ideal)) (val243 V0) = val512 V0 :=
  (after_opsFrom243 (val243 V0)).trans (after_opsFrom244_val V0)
theorem after_opsFrom242_val (V0 : Valuation τ sig (Elt Ideal)) : after (opsFrom242 (F := Ideal)) (val242 V0) = val512 V0 :=
  (after_opsFrom242 (val242 V0)).trans (after_opsFrom243_val V0)
theorem after_opsFrom241_val (V0 : Valuation τ sig (Elt Ideal)) : after (opsFrom241 (F := Ideal)) (val241 V0) = val512 V0 :=
  (after_opsFrom241 (val241 V0)).trans (after_opsFrom242_val V0)
theorem after_opsFrom240_val (V0 : Valuation τ sig (Elt Ideal)) : after (opsFrom240 (F := Ideal)) (val240 V0) = val512 V0 :=
  (after_opsFrom240 (val240 V0)).trans (after_opsFrom241_val V0)
theorem after_opsFrom239_val (V0 : Valuation τ sig (Elt Ideal)) : after (opsFrom239 (F := Ideal)) (val239 V0) = val512 V0 :=
  (after_opsFrom239 (val239 V0)).trans (after_opsFrom240_val V0)
theorem after_opsFrom238_val (V0 : Valuation τ sig (Elt Ideal)) : after (opsFrom238 (F := Ideal)) (val238 V0) = val512 V0 :=
  (after_opsFrom238 (val238 V0)).trans (after_opsFrom239_val V0)
theorem after_opsFrom237_val (V0 : Valuation τ sig (Elt Ideal)) : after (opsFrom237 (F := Ideal)) (val237 V0) = val512 V0 :=
  (after_opsFrom237 (val237 V0)).trans (after_opsFrom238_val V0)
theorem after_opsFrom236_val (V0 : Valuation τ sig (Elt Ideal)) : after (opsFrom236 (F := Ideal)) (val236 V0) = val512 V0 :=
  (after_opsFrom236 (val236 V0)).trans (after_opsFrom237_val V0)
theorem after_opsFrom235_val (V0 : Valuation τ sig (Elt Ideal)) : after (opsFrom235 (F := Ideal)) (val235 V0) = val512 V0 :=
  (after_opsFrom235 (val235 V0)).trans (after_opsFrom236_val V0)
theorem after_opsFrom234_val (V0 : Valuation τ sig (Elt Ideal)) : after (opsFrom234 (F := Ideal)) (val234 V0) = val512 V0 :=
  (after_opsFrom234 (val234 V0)).trans (after_opsFrom235_val V0)
theorem after_opsFrom233_val (V0 : Valuation τ sig (Elt Ideal)) : after (opsFrom233 (F := Ideal)) (val233 V0) = val512 V0 :=
  (after_opsFrom233 (val233 V0)).trans (after_opsFrom234_val V0)
theorem after_opsFrom232_val (V0 : Valuation τ sig (Elt Ideal)) : after (opsFrom232 (F := Ideal)) (val232 V0) = val512 V0 :=
  (after_opsFrom232 (val232 V0)).trans (after_opsFrom233_val V0)
theorem after_opsFrom231_val (V0 : Valuation τ sig (Elt Ideal)) : after (opsFrom231 (F := Ideal)) (val231 V0) = val512 V0 :=
  (after_opsFrom231 (val231 V0)).trans (after_opsFrom232_val V0)
theorem after_opsFrom230_val (V0 : Valuation τ sig (Elt Ideal)) : after (opsFrom230 (F := Ideal)) (val230 V0) = val512 V0 :=
  (after_opsFrom230 (val230 V0)).trans (after_opsFrom231_val V0)
theorem after_opsFrom229_val (V0 : Valuation τ sig (Elt Ideal)) : after (opsFrom229 (F := Ideal)) (val229 V0) = val512 V0 :=
  (after_opsFrom229 (val229 V0)).trans (after_opsFrom230_val V0)
theorem after_opsFrom228_val (V0 : Valuation τ sig (Elt Ideal)) : after (opsFrom228 (F := Ideal)) (val228 V0) = val512 V0 :=
  (after_opsFrom228 (val228 V0)).trans (after_opsFrom229_val V0)
theorem after_opsFrom227_val (V0 : Valuation τ sig (Elt Ideal)) : after (opsFrom227 (F := Ideal)) (val227 V0) = val512 V0 :=
  (after_opsFrom227 (val227 V0)).trans (after_opsFrom228_val V0)
theorem after_opsFrom226_val (V0 : Valuation τ sig (Elt Ideal)) : after (opsFrom226 (F := Ideal)) (val226 V0) = val512 V0 :=
  (after_opsFrom226 (val226 V0)).trans (after_opsFrom227_val V0)
theorem after_opsFrom225_val (V0 : Valuation τ sig (Elt Ideal)) : after (opsFrom225 (F := Ideal)) (val225 V0) = val512 V0 :=
  (after_opsFrom225 (val225 V0)).trans (after_opsFrom226_val V0)
theorem after_opsFrom224_val (V0 : Valuation τ sig (Elt Ideal)) : after (opsFrom224 (F := Ideal)) (val224 V0) = val512 V0 :=
  (after_opsFrom224 (val224 V0)).trans (after_opsFrom225_val V0)
theorem after_opsFrom223_val (V0 : Valuation τ sig (Elt Ideal)) : after (opsFrom223 (F := Ideal)) (val223 V0) = val512 V0 :=
  (after_opsFrom223 (val223 V0)).trans (after_opsFrom224_val V0)
theorem after_opsFrom222_val (V0 : Valuation τ sig (Elt Ideal)) : after (opsFrom222 (F := Ideal)) (val222 V0) = val512 V0 :=
  (after_opsFrom222 (val222 V0)).trans (after_opsFrom223_val V0)
theorem after_opsFrom221_val (V0 : Valuation τ sig (Elt Ideal)) : after (opsFrom221 (F := Ideal)) (val221 V0) = val512 V0 :=
  (after_opsFrom221 (val221 V0)).trans (after_opsFrom222_val V0)
theorem after_opsFrom220_val (V0 : Valuation τ sig (Elt Ideal)) : after (opsFrom220 (F := Ideal)) (val220 V0) = val512 V0 :=
  (after_opsFrom220 (val220 V0)).trans (after_opsFrom221_val V0)
theorem after_opsFrom219_val (V0 : Valuation τ sig (Elt Ideal)) : after (opsFrom219 (F := Ideal)) (val219 V0) = val512 V0 :=
  (after_opsFrom219 (val219 V0)).trans (after_opsFrom220_val V0)
theorem after_opsFrom218_val (V0 : Valuation τ sig (Elt Ideal)) : after (opsFrom218 (F := Ideal)) (val218 V0) = val512 V0 :=
  (after_opsFrom218 (val218 V0)).trans (after_opsFrom219_val V0)
theorem after_opsFrom217_val (V0 : Valuation τ sig (Elt Ideal)) : after (opsFrom217 (F := Ideal)) (val217 V0) = val512 V0 :=
  (after_opsFrom217 (val217 V0)).trans (after_opsFrom218_val V0)
theorem after_opsFrom216_val (V0 : Valuation τ sig (Elt Ideal)) : after (opsFrom216 (F := Ideal)) (val216 V0) = val512 V0 :=
  (after_opsFrom216 (val216 V0)).trans (after_opsFrom217_val V0)
theorem after_opsFrom215_val (V0 : Valuation τ sig (Elt Ideal)) : after (opsFrom215 (F := Ideal)) (val215 V0) = val512 V0 :=
  (after_opsFrom215 (val215 V0)).trans (after_opsFrom216_val V0)
theorem after_opsFrom214_val (V0 : Valuation τ sig (Elt Ideal)) : after (opsFrom214 (F := Ideal)) (val214 V0) = val512 V0 :=
  (after_opsFrom214 (val214 V0)).trans (after_opsFrom215_val V0)
theorem after_opsFrom213_val (V0 : Valuation τ sig (Elt Ideal)) : after (opsFrom213 (F := Ideal)) (val213 V0) = val512 V0 :=
  (after_opsFrom213 (val213 V0)).trans (after_opsFrom214_val V0)
theorem after_opsFrom212_val (V0 : Valuation τ sig (Elt Ideal)) : after (opsFrom212 (F := Ideal)) (val212 V0) = val512 V0 :=
  (after_opsFrom212 (val212 V0)).trans (after_opsFrom213_val V0)
theorem after_opsFrom211_val (V0 : Valuation τ sig (Elt Ideal)) : after (opsFrom211 (F := Ideal)) (val211 V0) = val512 V0 :=
  (after_opsFrom211 (val211 V0)).trans (after_opsFrom212_val V0)
theorem after_opsFrom210_val (V0 : Valuation τ sig (Elt Ideal)) : after (opsFrom210 (F := Ideal)) (val210 V0) = val512 V0 :=
  (after_opsFrom210 (val210 V0)).trans (after_opsFrom211_val V0)
theorem after_opsFrom209_val (V0 : Valuation τ sig (Elt Ideal)) : after (opsFrom209 (F := Ideal)) (val209 V0) = val512 V0 :=
  (after_opsFrom209 (val209 V0)).trans (after_opsFrom210_val V0)
theorem after_opsFrom208_val (V0 : Valuation τ sig (Elt Ideal)) : after (opsFrom208 (F := Ideal)) (val208 V0) = val512 V0 :=
  (after_opsFrom208 (val208 V0)).trans (after_opsFrom209_val V0)
theorem after_opsFrom207_val (V0 : Valuation τ sig (Elt Ideal)) : after (opsFrom207 (F := Ideal)) (val207 V0) = val512 V0 :=
  (after_opsFrom207 (val207 V0)).trans (after_opsFrom208_val V0)
theorem after_opsFrom206_val (V0 : Valuation τ sig (Elt Ideal)) : after (opsFrom206 (F := Ideal)) (val206 V0) = val512 V0 :=
  (after_opsFrom206 (val206 V0)).trans (after_opsFrom207_val V0)
theorem after_opsFrom205_val (V0 : Valuation τ sig (Elt Ideal)) : after (opsFrom205 (F := Ideal)) (val205 V0) = val512 V0 :=
  (after_opsFrom205 (val205 V0)).trans (after_opsFrom206_val V0)
theorem after_opsFrom204_val (V0 : Valuation τ sig (Elt Ideal)) : after (opsFrom204 (F := Ideal)) (val204 V0) = val512 V0 :=
  (after_opsFrom204 (val204 V0)).trans (after_opsFrom205_val V0)
theorem after_opsFrom203_val (V0 : Valuation τ sig (Elt Ideal)) : after (opsFrom203 (F := Ideal)) (val203 V0) = val512 V0 :=
  (after_opsFrom203 (val203 V0)).trans (after_opsFrom204_val V0)
theorem after_opsFrom202_val (V0 : Valuation τ sig (Elt Ideal)) : after (opsFrom202 (F := Ideal)) (val202 V0) = val512 V0 :=
  (after_opsFrom202 (val202 V0)).trans (after_opsFrom203_val V0)
theorem after_opsFrom201_val (V0 : Valuation τ sig (Elt Ideal)) : after (opsFrom201 (F := Ideal)) (val201 V0) = val512 V0 :=
  (after_opsFrom201 (val201 V0)).trans (after_opsFrom202_val V0)
theorem after_opsFrom200_val (V0 : Valuation τ sig (Elt Ideal)) : after (opsFrom200 (F := Ideal)) (val200 V0) = val512 V0 :=
  (after_opsFrom200 (val200 V0)).trans (after_opsFrom201_val V0)
theorem after_opsFrom199_val (V0 : Valuation τ sig (Elt Ideal)) : after (opsFrom199 (F := Ideal)) (val199 V0) = val512 V0 :=
  (after_opsFrom199 (val199 V0)).trans (after_opsFrom200_val V0)
theorem after_opsFrom198_val (V0 : Valuation τ sig (Elt Ideal)) : after (opsFrom198 (F := Ideal)) (val198 V0) = val512 V0 :=
  (after_opsFrom198 (val198 V0)).trans (after_opsFrom199_val V0)
theorem after_opsFrom197_val (V0 : Valuation τ sig (Elt Ideal)) : after (opsFrom197 (F := Ideal)) (val197 V0) = val512 V0 :=
  (after_opsFrom197 (val197 V0)).trans (after_opsFrom198_val V0)
theorem after_opsFrom196_val (V0 : Valuation τ sig (Elt Ideal)) : after (opsFrom196 (F := Ideal)) (val196 V0) = val512 V0 :=
  (after_opsFrom196 (val196 V0)).trans (after_opsFrom197_val V0)
theorem after_opsFrom195_val (V0 : Valuation τ sig (Elt Ideal)) : after (opsFrom195 (F := Ideal)) (val195 V0) = val512 V0 :=
  (after_opsFrom195 (val195 V0)).trans (after_opsFrom196_val V0)
theorem after_opsFrom194_val (V0 : Valuation τ sig (Elt Ideal)) : after (opsFrom194 (F := Ideal)) (val194 V0) = val512 V0 :=
  (after_opsFrom194 (val194 V0)).trans (after_opsFrom195_val V0)
theorem after_opsFrom193_val (V0 : Valuation τ sig (Elt Ideal)) : after (opsFrom193 (F := Ideal)) (val193 V0) = val512 V0 :=
  (after_opsFrom193 (val193 V0)).trans (after_opsFrom194_val V0)
theorem after_opsFrom192_val (V0 : Valuation τ sig (Elt Ideal)) : after (opsFrom192 (F := Ideal)) (val192 V0) = val512 V0 :=
  (after_opsFrom192 (val192 V0)).trans (after_opsFrom193_val V0)
theorem after_opsFrom191_val (V0 : Valuation τ sig (Elt Ideal)) : after (opsFrom191 (F := Ideal)) (val191 V0) = val512 V0 :=
  (after_opsFrom191 (val191 V0)).trans (after_opsFrom192_val V0)
theorem after_opsFrom190_val (V0 : Valuation τ sig (Elt Ideal)) : after (opsFrom190 (F := Ideal)) (val190 V0) = val512 V0 :=
  (after_opsFrom190 (val190 V0)).trans (after_opsFrom191_val V0)
theorem after_opsFrom189_val (V0 : Valuation τ sig (Elt Ideal)) : after (opsFrom189 (F := Ideal)) (val189 V0) = val512 V0 :=
  (after_opsFrom189 (val189 V0)).trans (after_opsFrom190_val V0)
theorem after_opsFrom188_val (V0 : Valuation τ sig (Elt Ideal)) : after (opsFrom188 (F := Ideal)) (val188 V0) = val512 V0 :=
  (after_opsFrom188 (val188 V0)).trans (after_opsFrom189_val V0)
theorem after_opsFrom187_val (V0 : Valuation τ sig (Elt Ideal)) : after (opsFrom187 (F := Ideal)) (val187 V0) = val512 V0 :=
  (after_opsFrom187 (val187 V0)).trans (after_opsFrom188_val V0)
theorem after_opsFrom186_val (V0 : Valuation τ sig (Elt Ideal)) : after (opsFrom186 (F := Ideal)) (val186 V0) = val512 V0 :=
  (after_opsFrom186 (val186 V0)).trans (after_opsFrom187_val V0)
theorem after_opsFrom185_val (V0 : Valuation τ sig (Elt Ideal)) : after (opsFrom185 (F := Ideal)) (val185 V0) = val512 V0 :=
  (after_opsFrom185 (val185 V0)).trans (after_opsFrom186_val V0)
theorem after_opsFrom184_val (V0 : Valuation τ sig (Elt Ideal)) : after (opsFrom184 (F := Ideal)) (val184 V0) = val512 V0 :=
  (after_opsFrom184 (val184 V0)).trans (after_opsFrom185_val V0)
theorem after_opsFrom183_val (V0 : Valuation τ sig (Elt Ideal)) : after (opsFrom183 (F := Ideal)) (val183 V0) = val512 V0 :=
  (after_opsFrom183 (val183 V0)).trans (after_opsFrom184_val V0)
theorem after_opsFrom182_val (V0 : Valuation τ sig (Elt Ideal)) : after (opsFrom182 (F := Ideal)) (val182 V0) = val512 V0 :=
  (after_opsFrom182 (val182 V0)).trans (after_opsFrom183_val V0)
theorem after_opsFrom181_val (V0 : Valuation τ sig (Elt Ideal)) : after (opsFrom181 (F := Ideal)) (val181 V0) = val512 V0 :=
  (after_opsFrom181 (val181 V0)).trans (after_opsFrom182_val V0)
theorem after_opsFrom180_val (V0 : Valuation τ sig (Elt Ideal)) : after (opsFrom180 (F := Ideal)) (val180 V0) = val512 V0 :=
  (after_opsFrom180 (val180 V0)).trans (after_opsFrom181_val V0)
theorem after_opsFrom179_val (V0 : Valuation τ sig (Elt Ideal)) : after (opsFrom179 (F := Ideal)) (val179 V0) = val512 V0 :=
  (after_opsFrom179 (val179 V0)).trans (after_opsFrom180_val V0)
theorem after_opsFrom178_val (V0 : Valuation τ sig (Elt Ideal)) : after (opsFrom178 (F := Ideal)) (val178 V0) = val512 V0 :=
  (after_opsFrom178 (val178 V0)).trans (after_opsFrom179_val V0)
theorem after_opsFrom177_val (V0 : Valuation τ sig (Elt Ideal)) : after (opsFrom177 (F := Ideal)) (val177 V0) = val512 V0 :=
  (after_opsFrom177 (val177 V0)).trans (after_opsFrom178_val V0)
theorem after_opsFrom176_val (V0 : Valuation τ sig (Elt Ideal)) : after (opsFrom176 (F := Ideal)) (val176 V0) = val512 V0 :=
  (after_opsFrom176 (val176 V0)).trans (after_opsFrom177_val V0)
theorem after_opsFrom175_val (V0 : Valuation τ sig (Elt Ideal)) : after (opsFrom175 (F := Ideal)) (val175 V0) = val512 V0 :=
  (after_opsFrom175 (val175 V0)).trans (after_opsFrom176_val V0)
theorem after_opsFrom174_val (V0 : Valuation τ sig (Elt Ideal)) : after (opsFrom174 (F := Ideal)) (val174 V0) = val512 V0 :=
  (after_opsFrom174 (val174 V0)).trans (after_opsFrom175_val V0)
theorem after_opsFrom173_val (V0 : Valuation τ sig (Elt Ideal)) : after (opsFrom173 (F := Ideal)) (val173 V0) = val512 V0 :=
  (after_opsFrom173 (val173 V0)).trans (after_opsFrom174_val V0)
theorem after_opsFrom172_val (V0 : Valuation τ sig (Elt Ideal)) : after (opsFrom172 (F := Ideal)) (val172 V0) = val512 V0 :=
  (after_opsFrom172 (val172 V0)).trans (after_opsFrom173_val V0)
theorem after_opsFrom171_val (V0 : Valuation τ sig (Elt Ideal)) : after (opsFrom171 (F := Ideal)) (val171 V0) = val512 V0 :=
  (after_opsFrom171 (val171 V0)).trans (after_opsFrom172_val V0)
theorem after_opsFrom170_val (V0 : Valuation τ sig (Elt Ideal)) : after (opsFrom170 (F := Ideal)) (val170 V0) = val512 V0 :=
  (after_opsFrom170 (val170 V0)).trans (after_opsFrom171_val V0)
theorem after_opsFrom169_val (V0 : Valuation τ sig (Elt Ideal)) : after (opsFrom169 (F := Ideal)) (val169 V0) = val512 V0 :=
  (after_opsFrom169 (val169 V0)).trans (after_opsFrom170_val V0)
theorem after_opsFrom168_val (V0 : Valuation τ sig (Elt Ideal)) : after (opsFrom168 (F := Ideal)) (val168 V0) = val512 V0 :=
  (after_opsFrom168 (val168 V0)).trans (after_opsFrom169_val V0)
theorem after_opsFrom167_val (V0 : Valuation τ sig (Elt Ideal)) : after (opsFrom167 (F := Ideal)) (val167 V0) = val512 V0 :=
  (after_opsFrom167 (val167 V0)).trans (after_opsFrom168_val V0)
theorem after_opsFrom166_val (V0 : Valuation τ sig (Elt Ideal)) : after (opsFrom166 (F := Ideal)) (val166 V0) = val512 V0 :=
  (after_opsFrom166 (val166 V0)).trans (after_opsFrom167_val V0)
theorem after_opsFrom165_val (V0 : Valuation τ sig (Elt Ideal)) : after (opsFrom165 (F := Ideal)) (val165 V0) = val512 V0 :=
  (after_opsFrom165 (val165 V0)).trans (after_opsFrom166_val V0)
theorem after_opsFrom164_val (V0 : Valuation τ sig (Elt Ideal)) : after (opsFrom164 (F := Ideal)) (val164 V0) = val512 V0 :=
  (after_opsFrom164 (val164 V0)).trans (after_opsFrom165_val V0)
theorem after_opsFrom163_val (V0 : Valuation τ sig (Elt Ideal)) : after (opsFrom163 (F := Ideal)) (val163 V0) = val512 V0 :=
  (after_opsFrom163 (val163 V0)).trans (after_opsFrom164_val V0)
theorem after_opsFrom162_val (V0 : Valuation τ sig (Elt Ideal)) : after (opsFrom162 (F := Ideal)) (val162 V0) = val512 V0 :=
  (after_opsFrom162 (val162 V0)).trans (after_opsFrom163_val V0)
theorem after_opsFrom161_val (V0 : Valuation τ sig (Elt Ideal)) : after (opsFrom161 (F := Ideal)) (val161 V0) = val512 V0 :=
  (after_opsFrom161 (val161 V0)).trans (after_opsFrom162_val V0)
theorem after_opsFrom160_val (V0 : Valuation τ sig (Elt Ideal)) : after (opsFrom160 (F := Ideal)) (val160 V0) = val512 V0 :=
  (after_opsFrom160 (val160 V0)).trans (after_opsFrom161_val V0)
theorem after_opsFrom159_val (V0 : Valuation τ sig (Elt Ideal)) : after (opsFrom159 (F := Ideal)) (val159 V0) = val512 V0 :=
  (after_opsFrom159 (val159 V0)).trans (after_opsFrom160_val V0)
theorem after_opsFrom158_val (V0 : Valuation τ sig (Elt Ideal)) : after (opsFrom158 (F := Ideal)) (val158 V0) = val512 V0 :=
  (after_opsFrom158 (val158 V0)).trans (after_opsFrom159_val V0)
theorem after_opsFrom157_val (V0 : Valuation τ sig (Elt Ideal)) : after (opsFrom157 (F := Ideal)) (val157 V0) = val512 V0 :=
  (after_opsFrom157 (val157 V0)).trans (after_opsFrom158_val V0)
theorem after_opsFrom156_val (V0 : Valuation τ sig (Elt Ideal)) : after (opsFrom156 (F := Ideal)) (val156 V0) = val512 V0 :=
  (after_opsFrom156 (val156 V0)).trans (after_opsFrom157_val V0)
theorem after_opsFrom155_val (V0 : Valuation τ sig (Elt Ideal)) : after (opsFrom155 (F := Ideal)) (val155 V0) = val512 V0 :=
  (after_opsFrom155 (val155 V0)).trans (after_opsFrom156_val V0)
theorem after_opsFrom154_val (V0 : Valuation τ sig (Elt Ideal)) : after (opsFrom154 (F := Ideal)) (val154 V0) = val512 V0 :=
  (after_opsFrom154 (val154 V0)).trans (after_opsFrom155_val V0)
theorem after_opsFrom153_val (V0 : Valuation τ sig (Elt Ideal)) : after (opsFrom153 (F := Ideal)) (val153 V0) = val512 V0 :=
  (after_opsFrom153 (val153 V0)).trans (after_opsFrom154_val V0)
theorem after_opsFrom152_val (V0 : Valuation τ sig (Elt Ideal)) : after (opsFrom152 (F := Ideal)) (val152 V0) = val512 V0 :=
  (after_opsFrom152 (val152 V0)).trans (after_opsFrom153_val V0)
theorem after_opsFrom151_val (V0 : Valuation τ sig (Elt Ideal)) : after (opsFrom151 (F := Ideal)) (val151 V0) = val512 V0 :=
  (after_opsFrom151 (val151 V0)).trans (after_opsFrom152_val V0)
theorem after_opsFrom150_val (V0 : Valuation τ sig (Elt Ideal)) : after (opsFrom150 (F := Ideal)) (val150 V0) = val512 V0 :=
  (after_opsFrom150 (val150 V0)).trans (after_opsFrom151_val V0)
theorem after_opsFrom149_val (V0 : Valuation τ sig (Elt Ideal)) : after (opsFrom149 (F := Ideal)) (val149 V0) = val512 V0 :=
  (after_opsFrom149 (val149 V0)).trans (after_opsFrom150_val V0)
theorem after_opsFrom148_val (V0 : Valuation τ sig (Elt Ideal)) : after (opsFrom148 (F := Ideal)) (val148 V0) = val512 V0 :=
  (after_opsFrom148 (val148 V0)).trans (after_opsFrom149_val V0)
theorem after_opsFrom147_val (V0 : Valuation τ sig (Elt Ideal)) : after (opsFrom147 (F := Ideal)) (val147 V0) = val512 V0 :=
  (after_opsFrom147 (val147 V0)).trans (after_opsFrom148_val V0)
theorem after_opsFrom146_val (V0 : Valuation τ sig (Elt Ideal)) : after (opsFrom146 (F := Ideal)) (val146 V0) = val512 V0 :=
  (after_opsFrom146 (val146 V0)).trans (after_opsFrom147_val V0)
theorem after_opsFrom145_val (V0 : Valuation τ sig (Elt Ideal)) : after (opsFrom145 (F := Ideal)) (val145 V0) = val512 V0 :=
  (after_opsFrom145 (val145 V0)).trans (after_opsFrom146_val V0)
theorem after_opsFrom144_val (V0 : Valuation τ sig (Elt Ideal)) : after (opsFrom144 (F := Ideal)) (val144 V0) = val512 V0 :=
  (after_opsFrom144 (val144 V0)).trans (after_opsFrom145_val V0)
theorem after_opsFrom143_val (V0 : Valuation τ sig (Elt Ideal)) : after (opsFrom143 (F := Ideal)) (val143 V0) = val512 V0 :=
  (after_opsFrom143 (val143 V0)).trans (after_opsFrom144_val V0)
theorem after_opsFrom142_val (V0 : Valuation τ sig (Elt Ideal)) : after (opsFrom142 (F := Ideal)) (val142 V0) = val512 V0 :=
  (after_opsFrom142 (val142 V0)).trans (after_opsFrom143_val V0)
theorem after_opsFrom141_val (V0 : Valuation τ sig (Elt Ideal)) : after (opsFrom141 (F := Ideal)) (val141 V0) = val512 V0 :=
  (after_opsFrom141 (val141 V0)).trans (after_opsFrom142_val V0)
theorem after_opsFrom140_val (V0 : Valuation τ sig (Elt Ideal)) : after (opsFrom140 (F := Ideal)) (val140 V0) = val512 V0 :=
  (after_opsFrom140 (val140 V0)).trans (after_opsFrom141_val V0)
theorem after_opsFrom139_val (V0 : Valuation τ sig (Elt Ideal)) : after (opsFrom139 (F := Ideal)) (val139 V0) = val512 V0 :=
  (after_opsFrom139 (val139 V0)).trans (after_opsFrom140_val V0)
theorem after_opsFrom138_val (V0 : Valuation τ sig (Elt Ideal)) : after (opsFrom138 (F := Ideal)) (val138 V0) = val512 V0 :=
  (after_opsFrom138 (val138 V0)).trans (after_opsFrom139_val V0)
theorem after_opsFrom137_val (V0 : Valuation τ sig (Elt Ideal)) : after (opsFrom137 (F := Ideal)) (val137 V0) = val512 V0 :=
  (after_opsFrom137 (val137 V0)).trans (after_opsFrom138_val V0)
theorem after_opsFrom136_val (V0 : Valuation τ sig (Elt Ideal)) : after (opsFrom136 (F := Ideal)) (val136 V0) = val512 V0 :=
  (after_opsFrom136 (val136 V0)).trans (after_opsFrom137_val V0)
theorem after_opsFrom135_val (V0 : Valuation τ sig (Elt Ideal)) : after (opsFrom135 (F := Ideal)) (val135 V0) = val512 V0 :=
  (after_opsFrom135 (val135 V0)).trans (after_opsFrom136_val V0)
theorem after_opsFrom134_val (V0 : Valuation τ sig (Elt Ideal)) : after (opsFrom134 (F := Ideal)) (val134 V0) = val512 V0 :=
  (after_opsFrom134 (val134 V0)).trans (after_opsFrom135_val V0)
theorem after_opsFrom133_val (V0 : Valuation τ sig (Elt Ideal)) : after (opsFrom133 (F := Ideal)) (val133 V0) = val512 V0 :=
  (after_opsFrom133 (val133 V0)).trans (after_opsFrom134_val V0)
theorem after_opsFrom132_val (V0 : Valuation τ sig (Elt Ideal)) : after (opsFrom132 (F := Ideal)) (val132 V0) = val512 V0 :=
  (after_opsFrom132 (val132 V0)).trans (after_opsFrom133_val V0)
theorem after_opsFrom131_val (V0 : Valuation τ sig (Elt Ideal)) : after (opsFrom131 (F := Ideal)) (val131 V0) = val512 V0 :=
  (after_opsFrom131 (val131 V0)).trans (after_opsFrom132_val V0)
theorem after_opsFrom130_val (V0 : Valuation τ sig (Elt Ideal)) : after (opsFrom130 (F := Ideal)) (val130 V0) = val512 V0 :=
  (after_opsFrom130 (val130 V0)).trans (after_opsFrom131_val V0)
theorem after_opsFrom129_val (V0 : Valuation τ sig (Elt Ideal)) : after (opsFrom129 (F := Ideal)) (val129 V0) = val512 V0 :=
  (after_opsFrom129 (val129 V0)).trans (after_opsFrom130_val V0)
theorem after_opsFrom128_val (V0 : Valuation τ sig (Elt Ideal)) : after (opsFrom128 (F := Ideal)) (val128 V0) = val512 V0 :=
  (after_opsFrom128 (val128 V0)).trans (after_opsFrom129_val V0)
theorem after_opsFrom127_val (V0 : Valuation τ sig (Elt Ideal)) : after (opsFrom127 (F := Ideal)) (val127 V0) = val512 V0 :=
  (after_opsFrom127 (val127 V0)).trans (after_opsFrom128_val V0)
theorem after_opsFrom126_val (V0 : Valuation τ sig (Elt Ideal)) : after (opsFrom126 (F := Ideal)) (val126 V0) = val512 V0 :=
  (after_opsFrom126 (val126 V0)).trans (after_opsFrom127_val V0)
theorem after_opsFrom125_val (V0 : Valuation τ sig (Elt Ideal)) : after (opsFrom125 (F := Ideal)) (val125 V0) = val512 V0 :=
  (after_opsFrom125 (val125 V0)).trans (after_opsFrom126_val V0)
theorem after_opsFrom124_val (V0 : Valuation τ sig (Elt Ideal)) : after (opsFrom124 (F := Ideal)) (val124 V0) = val512 V0 :=
  (after_opsFrom124 (val124 V0)).trans (after_opsFrom125_val V0)
theorem after_opsFrom123_val (V0 : Valuation τ sig (Elt Ideal)) : after (opsFrom123 (F := Ideal)) (val123 V0) = val512 V0 :=
  (after_opsFrom123 (val123 V0)).trans (after_opsFrom124_val V0)
theorem after_opsFrom122_val (V0 : Valuation τ sig (Elt Ideal)) : after (opsFrom122 (F := Ideal)) (val122 V0) = val512 V0 :=
  (after_opsFrom122 (val122 V0)).trans (after_opsFrom123_val V0)
theorem after_opsFrom121_val (V0 : Valuation τ sig (Elt Ideal)) : after (opsFrom121 (F := Ideal)) (val121 V0) = val512 V0 :=
  (after_opsFrom121 (val121 V0)).trans (after_opsFrom122_val V0)
theorem after_opsFrom120_val (V0 : Valuation τ sig (Elt Ideal)) : after (opsFrom120 (F := Ideal)) (val120 V0) = val512 V0 :=
  (after_opsFrom120 (val120 V0)).trans (after_opsFrom121_val V0)
theorem after_opsFrom119_val (V0 : Valuation τ sig (Elt Ideal)) : after (opsFrom119 (F := Ideal)) (val119 V0) = val512 V0 :=
  (after_opsFrom119 (val119 V0)).trans (after_opsFrom120_val V0)
theorem after_opsFrom118_val (V0 : Valuation τ sig (Elt Ideal)) : after (opsFrom118 (F := Ideal)) (val118 V0) = val512 V0 :=
  (after_opsFrom118 (val118 V0)).trans (after_opsFrom119_val V0)
theorem after_opsFrom117_val (V0 : Valuation τ sig (Elt Ideal)) : after (opsFrom117 (F := Ideal)) (val117 V0) = val512 V0 :=
  (after_opsFrom117 (val117 V0)).trans (after_opsFrom118_val V0)
theorem after_opsFrom116_val (V0 : Valuation τ sig (Elt Ideal)) : after (opsFrom116 (F := Ideal)) (val116 V0) = val512 V0 :=
  (after_opsFrom116 (val116 V0)).trans (after_opsFrom117_val V0)
theorem after_opsFrom115_val (V0 : Valuation τ sig (Elt Ideal)) : after (opsFrom115 (F := Ideal)) (val115 V0) = val512 V0 :=
  (after_opsFrom115 (val115 V0)).trans (after_opsFrom116_val V0)
theorem after_opsFrom114_val (V0 : Valuation τ sig (Elt Ideal)) : after (opsFrom114 (F := Ideal)) (val114 V0) = val512 V0 :=
  (after_opsFrom114 (val114 V0)).trans (after_opsFrom115_val V0)
theorem after_opsFrom113_val (V0 : Valuation τ sig (Elt Ideal)) : after (opsFrom113 (F := Ideal)) (val113 V0) = val512 V0 :=
  (after_opsFrom113 (val113 V0)).trans (after_opsFrom114_val V0)
theorem after_opsFrom112_val (V0 : Valuation τ sig (Elt Ideal)) : after (opsFrom112 (F := Ideal)) (val112 V0) = val512 V0 :=
  (after_opsFrom112 (val112 V0)).trans (after_opsFrom113_val V0)
theorem after_opsFrom111_val (V0 : Valuation τ sig (Elt Ideal)) : after (opsFrom111 (F := Ideal)) (val111 V0) = val512 V0 :=
  (after_opsFrom111 (val111 V0)).trans (after_opsFrom112_val V0)
theorem after_opsFrom110_val (V0 : Valuation τ sig (Elt Ideal)) : after (opsFrom110 (F := Ideal)) (val110 V0) = val512 V0 :=
  (after_opsFrom110 (val110 V0)).trans (after_opsFrom111_val V0)
theorem after_opsFrom109_val (V0 : Valuation τ sig (Elt Ideal)) : after (opsFrom109 (F := Ideal)) (val109 V0) = val512 V0 :=
  (after_opsFrom109 (val109 V0)).trans (after_opsFrom110_val V0)
theorem after_opsFrom108_val (V0 : Valuation τ sig (Elt Ideal)) : after (opsFrom108 (F := Ideal)) (val108 V0) = val512 V0 :=
  (after_opsFrom108 (val108 V0)).trans (after_opsFrom109_val V0)
theorem after_opsFrom107_val (V0 : Valuation τ sig (Elt Ideal)) : after (opsFrom107 (F := Ideal)) (val107 V0) = val512 V0 :=
  (after_opsFrom107 (val107 V0)).trans (after_opsFrom108_val V0)
theorem after_opsFrom106_val (V0 : Valuation τ sig (Elt Ideal)) : after (opsFrom106 (F := Ideal)) (val106 V0) = val512 V0 :=
  (after_opsFrom106 (val106 V0)).trans (after_opsFrom107_val V0)
theorem after_opsFrom105_val (V0 : Valuation τ sig (Elt Ideal)) : after (opsFrom105 (F := Ideal)) (val105 V0) = val512 V0 :=
  (after_opsFrom105 (val105 V0)).trans (after_opsFrom106_val V0)
theorem after_opsFrom104_val (V0 : Valuation τ sig (Elt Ideal)) : after (opsFrom104 (F := Ideal)) (val104 V0) = val512 V0 :=
  (after_opsFrom104 (val104 V0)).trans (after_opsFrom105_val V0)
theorem after_opsFrom103_val (V0 : Valuation τ sig (Elt Ideal)) : after (opsFrom103 (F := Ideal)) (val103 V0) = val512 V0 :=
  (after_opsFrom103 (val103 V0)).trans (after_opsFrom104_val V0)
theorem after_opsFrom102_val (V0 : Valuation τ sig (Elt Ideal)) : after (opsFrom102 (F := Ideal)) (val102 V0) = val512 V0 :=
  (after_opsFrom102 (val102 V0)).trans (after_opsFrom103_val V0)
theorem after_opsFrom101_val (V0 : Valuation τ sig (Elt Ideal)) : after (opsFrom101 (F := Ideal)) (val101 V0) = val512 V0 :=
  (after_opsFrom101 (val101 V0)).trans (after_opsFrom102_val V0)
theorem after_opsFrom100_val (V0 : Valuation τ sig (Elt Ideal)) : after (opsFrom100 (F := Ideal)) (val100 V0) = val512 V0 :=
  (after_opsFrom100 (val100 V0)).trans (after_opsFrom101_val V0)
theorem after_opsFrom99_val (V0 : Valuation τ sig (Elt Ideal)) : after (opsFrom99 (F := Ideal)) (val99 V0) = val512 V0 :=
  (after_opsFrom99 (val99 V0)).trans (after_opsFrom100_val V0)
theorem after_opsFrom98_val (V0 : Valuation τ sig (Elt Ideal)) : after (opsFrom98 (F := Ideal)) (val98 V0) = val512 V0 :=
  (after_opsFrom98 (val98 V0)).trans (after_opsFrom99_val V0)
theorem after_opsFrom97_val (V0 : Valuation τ sig (Elt Ideal)) : after (opsFrom97 (F := Ideal)) (val97 V0) = val512 V0 :=
  (after_opsFrom97 (val97 V0)).trans (after_opsFrom98_val V0)
theorem after_opsFrom96_val (V0 : Valuation τ sig (Elt Ideal)) : after (opsFrom96 (F := Ideal)) (val96 V0) = val512 V0 :=
  (after_opsFrom96 (val96 V0)).trans (after_opsFrom97_val V0)
theorem after_opsFrom95_val (V0 : Valuation τ sig (Elt Ideal)) : after (opsFrom95 (F := Ideal)) (val95 V0) = val512 V0 :=
  (after_opsFrom95 (val95 V0)).trans (after_opsFrom96_val V0)
theorem after_opsFrom94_val (V0 : Valuation τ sig (Elt Ideal)) : after (opsFrom94 (F := Ideal)) (val94 V0) = val512 V0 :=
  (after_opsFrom94 (val94 V0)).trans (after_opsFrom95_val V0)
theorem after_opsFrom93_val (V0 : Valuation τ sig (Elt Ideal)) : after (opsFrom93 (F := Ideal)) (val93 V0) = val512 V0 :=
  (after_opsFrom93 (val93 V0)).trans (after_opsFrom94_val V0)
theorem after_opsFrom92_val (V0 : Valuation τ sig (Elt Ideal)) : after (opsFrom92 (F := Ideal)) (val92 V0) = val512 V0 :=
  (after_opsFrom92 (val92 V0)).trans (after_opsFrom93_val V0)
theorem after_opsFrom91_val (V0 : Valuation τ sig (Elt Ideal)) : after (opsFrom91 (F := Ideal)) (val91 V0) = val512 V0 :=
  (after_opsFrom91 (val91 V0)).trans (after_opsFrom92_val V0)
theorem after_opsFrom90_val (V0 : Valuation τ sig (Elt Ideal)) : after (opsFrom90 (F := Ideal)) (val90 V0) = val512 V0 :=
  (after_opsFrom90 (val90 V0)).trans (after_opsFrom91_val V0)
theorem after_opsFrom89_val (V0 : Valuation τ sig (Elt Ideal)) : after (opsFrom89 (F := Ideal)) (val89 V0) = val512 V0 :=
  (after_opsFrom89 (val89 V0)).trans (after_opsFrom90_val V0)
theorem after_opsFrom88_val (V0 : Valuation τ sig (Elt Ideal)) : after (opsFrom88 (F := Ideal)) (val88 V0) = val512 V0 :=
  (after_opsFrom88 (val88 V0)).trans (after_opsFrom89_val V0)
theorem after_opsFrom87_val (V0 : Valuation τ sig (Elt Ideal)) : after (opsFrom87 (F := Ideal)) (val87 V0) = val512 V0 :=
  (after_opsFrom87 (val87 V0)).trans (after_opsFrom88_val V0)
theorem after_opsFrom86_val (V0 : Valuation τ sig (Elt Ideal)) : after (opsFrom86 (F := Ideal)) (val86 V0) = val512 V0 :=
  (after_opsFrom86 (val86 V0)).trans (after_opsFrom87_val V0)
theorem after_opsFrom85_val (V0 : Valuation τ sig (Elt Ideal)) : after (opsFrom85 (F := Ideal)) (val85 V0) = val512 V0 :=
  (after_opsFrom85 (val85 V0)).trans (after_opsFrom86_val V0)
theorem after_opsFrom84_val (V0 : Valuation τ sig (Elt Ideal)) : after (opsFrom84 (F := Ideal)) (val84 V0) = val512 V0 :=
  (after_opsFrom84 (val84 V0)).trans (after_opsFrom85_val V0)
theorem after_opsFrom83_val (V0 : Valuation τ sig (Elt Ideal)) : after (opsFrom83 (F := Ideal)) (val83 V0) = val512 V0 :=
  (after_opsFrom83 (val83 V0)).trans (after_opsFrom84_val V0)
theorem after_opsFrom82_val (V0 : Valuation τ sig (Elt Ideal)) : after (opsFrom82 (F := Ideal)) (val82 V0) = val512 V0 :=
  (after_opsFrom82 (val82 V0)).trans (after_opsFrom83_val V0)
theorem after_opsFrom81_val (V0 : Valuation τ sig (Elt Ideal)) : after (opsFrom81 (F := Ideal)) (val81 V0) = val512 V0 :=
  (after_opsFrom81 (val81 V0)).trans (after_opsFrom82_val V0)
theorem after_opsFrom80_val (V0 : Valuation τ sig (Elt Ideal)) : after (opsFrom80 (F := Ideal)) (val80 V0) = val512 V0 :=
  (after_opsFrom80 (val80 V0)).trans (after_opsFrom81_val V0)
theorem after_opsFrom79_val (V0 : Valuation τ sig (Elt Ideal)) : after (opsFrom79 (F := Ideal)) (val79 V0) = val512 V0 :=
  (after_opsFrom79 (val79 V0)).trans (after_opsFrom80_val V0)
theorem after_opsFrom78_val (V0 : Valuation τ sig (Elt Ideal)) : after (opsFrom78 (F := Ideal)) (val78 V0) = val512 V0 :=
  (after_opsFrom78 (val78 V0)).trans (after_opsFrom79_val V0)
theorem after_opsFrom77_val (V0 : Valuation τ sig (Elt Ideal)) : after (opsFrom77 (F := Ideal)) (val77 V0) = val512 V0 :=
  (after_opsFrom77 (val77 V0)).trans (after_opsFrom78_val V0)
theorem after_opsFrom76_val (V0 : Valuation τ sig (Elt Ideal)) : after (opsFrom76 (F := Ideal)) (val76 V0) = val512 V0 :=
  (after_opsFrom76 (val76 V0)).trans (after_opsFrom77_val V0)
theorem after_opsFrom75_val (V0 : Valuation τ sig (Elt Ideal)) : after (opsFrom75 (F := Ideal)) (val75 V0) = val512 V0 :=
  (after_opsFrom75 (val75 V0)).trans (after_opsFrom76_val V0)
theorem after_opsFrom74_val (V0 : Valuation τ sig (Elt Ideal)) : after (opsFrom74 (F := Ideal)) (val74 V0) = val512 V0 :=
  (after_opsFrom74 (val74 V0)).trans (after_opsFrom75_val V0)
theorem after_opsFrom73_val (V0 : Valuation τ sig (Elt Ideal)) : after (opsFrom73 (F := Ideal)) (val73 V0) = val512 V0 :=
  (after_opsFrom73 (val73 V0)).trans (after_opsFrom74_val V0)
theorem after_opsFrom72_val (V0 : Valuation τ sig (Elt Ideal)) : after (opsFrom72 (F := Ideal)) (val72 V0) = val512 V0 :=
  (after_opsFrom72 (val72 V0)).trans (after_opsFrom73_val V0)
theorem after_opsFrom71_val (V0 : Valuation τ sig (Elt Ideal)) : after (opsFrom71 (F := Ideal)) (val71 V0) = val512 V0 :=
  (after_opsFrom71 (val71 V0)).trans (after_opsFrom72_val V0)
theorem after_opsFrom70_val (V0 : Valuation τ sig (Elt Ideal)) : after (opsFrom70 (F := Ideal)) (val70 V0) = val512 V0 :=
  (after_opsFrom70 (val70 V0)).trans (after_opsFrom71_val V0)
theorem after_opsFrom69_val (V0 : Valuation τ sig (Elt Ideal)) : after (opsFrom69 (F := Ideal)) (val69 V0) = val512 V0 :=
  (after_opsFrom69 (val69 V0)).trans (after_opsFrom70_val V0)
theorem after_opsFrom68_val (V0 : Valuation τ sig (Elt Ideal)) : after (opsFrom68 (F := Ideal)) (val68 V0) = val512 V0 :=
  (after_opsFrom68 (val68 V0)).trans (after_opsFrom69_val V0)
theorem after_opsFrom67_val (V0 : Valuation τ sig (Elt Ideal)) : after (opsFrom67 (F := Ideal)) (val67 V0) = val512 V0 :=
  (after_opsFrom67 (val67 V0)).trans (after_opsFrom68_val V0)
theorem after_opsFrom66_val (V0 : Valuation τ sig (Elt Ideal)) : after (opsFrom66 (F := Ideal)) (val66 V0) = val512 V0 :=
  (after_opsFrom66 (val66 V0)).trans (after_opsFrom67_val V0)
theorem after_opsFrom65_val (V0 : Valuation τ sig (Elt Ideal)) : after (opsFrom65 (F := Ideal)) (val65 V0) = val512 V0 :=
  (after_opsFrom65 (val65 V0)).trans (after_opsFrom66_val V0)
theorem after_opsFrom64_val (V0 : Valuation τ sig (Elt Ideal)) : after (opsFrom64 (F := Ideal)) (val64 V0) = val512 V0 :=
  (after_opsFrom64 (val64 V0)).trans (after_opsFrom65_val V0)
theorem after_opsFrom63_val (V0 : Valuation τ sig (Elt Ideal)) : after (opsFrom63 (F := Ideal)) (val63 V0) = val512 V0 :=
  (after_opsFrom63 (val63 V0)).trans (after_opsFrom64_val V0)
theorem after_opsFrom62_val (V0 : Valuation τ sig (Elt Ideal)) : after (opsFrom62 (F := Ideal)) (val62 V0) = val512 V0 :=
  (after_opsFrom62 (val62 V0)).trans (after_opsFrom63_val V0)
theorem after_opsFrom61_val (V0 : Valuation τ sig (Elt Ideal)) : after (opsFrom61 (F := Ideal)) (val61 V0) = val512 V0 :=
  (after_opsFrom61 (val61 V0)).trans (after_opsFrom62_val V0)
theorem after_opsFrom60_val (V0 : Valuation τ sig (Elt Ideal)) : after (opsFrom60 (F := Ideal)) (val60 V0) = val512 V0 :=
  (after_opsFrom60 (val60 V0)).trans (after_opsFrom61_val V0)
theorem after_opsFrom59_val (V0 : Valuation τ sig (Elt Ideal)) : after (opsFrom59 (F := Ideal)) (val59 V0) = val512 V0 :=
  (after_opsFrom59 (val59 V0)).trans (after_opsFrom60_val V0)
theorem after_opsFrom58_val (V0 : Valuation τ sig (Elt Ideal)) : after (opsFrom58 (F := Ideal)) (val58 V0) = val512 V0 :=
  (after_opsFrom58 (val58 V0)).trans (after_opsFrom59_val V0)
theorem after_opsFrom57_val (V0 : Valuation τ sig (Elt Ideal)) : after (opsFrom57 (F := Ideal)) (val57 V0) = val512 V0 :=
  (after_opsFrom57 (val57 V0)).trans (after_opsFrom58_val V0)
theorem after_opsFrom56_val (V0 : Valuation τ sig (Elt Ideal)) : after (opsFrom56 (F := Ideal)) (val56 V0) = val512 V0 :=
  (after_opsFrom56 (val56 V0)).trans (after_opsFrom57_val V0)
theorem after_opsFrom55_val (V0 : Valuation τ sig (Elt Ideal)) : after (opsFrom55 (F := Ideal)) (val55 V0) = val512 V0 :=
  (after_opsFrom55 (val55 V0)).trans (after_opsFrom56_val V0)
theorem after_opsFrom54_val (V0 : Valuation τ sig (Elt Ideal)) : after (opsFrom54 (F := Ideal)) (val54 V0) = val512 V0 :=
  (after_opsFrom54 (val54 V0)).trans (after_opsFrom55_val V0)
theorem after_opsFrom53_val (V0 : Valuation τ sig (Elt Ideal)) : after (opsFrom53 (F := Ideal)) (val53 V0) = val512 V0 :=
  (after_opsFrom53 (val53 V0)).trans (after_opsFrom54_val V0)
theorem after_opsFrom52_val (V0 : Valuation τ sig (Elt Ideal)) : after (opsFrom52 (F := Ideal)) (val52 V0) = val512 V0 :=
  (after_opsFrom52 (val52 V0)).trans (after_opsFrom53_val V0)
theorem after_opsFrom51_val (V0 : Valuation τ sig (Elt Ideal)) : after (opsFrom51 (F := Ideal)) (val51 V0) = val512 V0 :=
  (after_opsFrom51 (val51 V0)).trans (after_opsFrom52_val V0)
theorem after_opsFrom50_val (V0 : Valuation τ sig (Elt Ideal)) : after (opsFrom50 (F := Ideal)) (val50 V0) = val512 V0 :=
  (after_opsFrom50 (val50 V0)).trans (after_opsFrom51_val V0)
theorem after_opsFrom49_val (V0 : Valuation τ sig (Elt Ideal)) : after (opsFrom49 (F := Ideal)) (val49 V0) = val512 V0 :=
  (after_opsFrom49 (val49 V0)).trans (after_opsFrom50_val V0)
theorem after_opsFrom48_val (V0 : Valuation τ sig (Elt Ideal)) : after (opsFrom48 (F := Ideal)) (val48 V0) = val512 V0 :=
  (after_opsFrom48 (val48 V0)).trans (after_opsFrom49_val V0)
theorem after_opsFrom47_val (V0 : Valuation τ sig (Elt Ideal)) : after (opsFrom47 (F := Ideal)) (val47 V0) = val512 V0 :=
  (after_opsFrom47 (val47 V0)).trans (after_opsFrom48_val V0)
theorem after_opsFrom46_val (V0 : Valuation τ sig (Elt Ideal)) : after (opsFrom46 (F := Ideal)) (val46 V0) = val512 V0 :=
  (after_opsFrom46 (val46 V0)).trans (after_opsFrom47_val V0)
theorem after_opsFrom45_val (V0 : Valuation τ sig (Elt Ideal)) : after (opsFrom45 (F := Ideal)) (val45 V0) = val512 V0 :=
  (after_opsFrom45 (val45 V0)).trans (after_opsFrom46_val V0)
theorem after_opsFrom44_val (V0 : Valuation τ sig (Elt Ideal)) : after (opsFrom44 (F := Ideal)) (val44 V0) = val512 V0 :=
  (after_opsFrom44 (val44 V0)).trans (after_opsFrom45_val V0)
theorem after_opsFrom43_val (V0 : Valuation τ sig (Elt Ideal)) : after (opsFrom43 (F := Ideal)) (val43 V0) = val512 V0 :=
  (after_opsFrom43 (val43 V0)).trans (after_opsFrom44_val V0)
theorem after_opsFrom42_val (V0 : Valuation τ sig (Elt Ideal)) : after (opsFrom42 (F := Ideal)) (val42 V0) = val512 V0 :=
  (after_opsFrom42 (val42 V0)).trans (after_opsFrom43_val V0)
theorem after_opsFrom41_val (V0 : Valuation τ sig (Elt Ideal)) : after (opsFrom41 (F := Ideal)) (val41 V0) = val512 V0 :=
  (after_opsFrom41 (val41 V0)).trans (after_opsFrom42_val V0)
theorem after_opsFrom40_val (V0 : Valuation τ sig (Elt Ideal)) : after (opsFrom40 (F := Ideal)) (val40 V0) = val512 V0 :=
  (after_opsFrom40 (val40 V0)).trans (after_opsFrom41_val V0)
theorem after_opsFrom39_val (V0 : Valuation τ sig (Elt Ideal)) : after (opsFrom39 (F := Ideal)) (val39 V0) = val512 V0 :=
  (after_opsFrom39 (val39 V0)).trans (after_opsFrom40_val V0)
theorem after_opsFrom38_val (V0 : Valuation τ sig (Elt Ideal)) : after (opsFrom38 (F := Ideal)) (val38 V0) = val512 V0 :=
  (after_opsFrom38 (val38 V0)).trans (after_opsFrom39_val V0)
theorem after_opsFrom37_val (V0 : Valuation τ sig (Elt Ideal)) : after (opsFrom37 (F := Ideal)) (val37 V0) = val512 V0 :=
  (after_opsFrom37 (val37 V0)).trans (after_opsFrom38_val V0)
theorem after_opsFrom36_val (V0 : Valuation τ sig (Elt Ideal)) : after (opsFrom36 (F := Ideal)) (val36 V0) = val512 V0 :=
  (after_opsFrom36 (val36 V0)).trans (after_opsFrom37_val V0)
theorem after_opsFrom35_val (V0 : Valuation τ sig (Elt Ideal)) : after (opsFrom35 (F := Ideal)) (val35 V0) = val512 V0 :=
  (after_opsFrom35 (val35 V0)).trans (after_opsFrom36_val V0)
theorem after_opsFrom34_val (V0 : Valuation τ sig (Elt Ideal)) : after (opsFrom34 (F := Ideal)) (val34 V0) = val512 V0 :=
  (after_opsFrom34 (val34 V0)).trans (after_opsFrom35_val V0)
theorem after_opsFrom33_val (V0 : Valuation τ sig (Elt Ideal)) : after (opsFrom33 (F := Ideal)) (val33 V0) = val512 V0 :=
  (after_opsFrom33 (val33 V0)).trans (after_opsFrom34_val V0)
theorem after_opsFrom32_val (V0 : Valuation τ sig (Elt Ideal)) : after (opsFrom32 (F := Ideal)) (val32 V0) = val512 V0 :=
  (after_opsFrom32 (val32 V0)).trans (after_opsFrom33_val V0)
theorem after_opsFrom31_val (V0 : Valuation τ sig (Elt Ideal)) : after (opsFrom31 (F := Ideal)) (val31 V0) = val512 V0 :=
  (after_opsFrom31 (val31 V0)).trans (after_opsFrom32_val V0)
theorem after_opsFrom30_val (V0 : Valuation τ sig (Elt Ideal)) : after (opsFrom30 (F := Ideal)) (val30 V0) = val512 V0 :=
  (after_opsFrom30 (val30 V0)).trans (after_opsFrom31_val V0)
theorem after_opsFrom29_val (V0 : Valuation τ sig (Elt Ideal)) : after (opsFrom29 (F := Ideal)) (val29 V0) = val512 V0 :=
  (after_opsFrom29 (val29 V0)).trans (after_opsFrom30_val V0)
theorem after_opsFrom28_val (V0 : Valuation τ sig (Elt Ideal)) : after (opsFrom28 (F := Ideal)) (val28 V0) = val512 V0 :=
  (after_opsFrom28 (val28 V0)).trans (after_opsFrom29_val V0)
theorem after_opsFrom27_val (V0 : Valuation τ sig (Elt Ideal)) : after (opsFrom27 (F := Ideal)) (val27 V0) = val512 V0 :=
  (after_opsFrom27 (val27 V0)).trans (after_opsFrom28_val V0)
theorem after_opsFrom26_val (V0 : Valuation τ sig (Elt Ideal)) : after (opsFrom26 (F := Ideal)) (val26 V0) = val512 V0 :=
  (after_opsFrom26 (val26 V0)).trans (after_opsFrom27_val V0)
theorem after_opsFrom25_val (V0 : Valuation τ sig (Elt Ideal)) : after (opsFrom25 (F := Ideal)) (val25 V0) = val512 V0 :=
  (after_opsFrom25 (val25 V0)).trans (after_opsFrom26_val V0)
theorem after_opsFrom24_val (V0 : Valuation τ sig (Elt Ideal)) : after (opsFrom24 (F := Ideal)) (val24 V0) = val512 V0 :=
  (after_opsFrom24 (val24 V0)).trans (after_opsFrom25_val V0)
theorem after_opsFrom23_val (V0 : Valuation τ sig (Elt Ideal)) : after (opsFrom23 (F := Ideal)) (val23 V0) = val512 V0 :=
  (after_opsFrom23 (val23 V0)).trans (after_opsFrom24_val V0)
theorem after_opsFrom22_val (V0 : Valuation τ sig (Elt Ideal)) : after (opsFrom22 (F := Ideal)) (val22 V0) = val512 V0 :=
  (after_opsFrom22 (val22 V0)).trans (after_opsFrom23_val V0)
theorem after_opsFrom21_val (V0 : Valuation τ sig (Elt Ideal)) : after (opsFrom21 (F := Ideal)) (val21 V0) = val512 V0 :=
  (after_opsFrom21 (val21 V0)).trans (after_opsFrom22_val V0)
theorem after_opsFrom20_val (V0 : Valuation τ sig (Elt Ideal)) : after (opsFrom20 (F := Ideal)) (val20 V0) = val512 V0 :=
  (after_opsFrom20 (val20 V0)).trans (after_opsFrom21_val V0)
theorem after_opsFrom19_val (V0 : Valuation τ sig (Elt Ideal)) : after (opsFrom19 (F := Ideal)) (val19 V0) = val512 V0 :=
  (after_opsFrom19 (val19 V0)).trans (after_opsFrom20_val V0)
theorem after_opsFrom18_val (V0 : Valuation τ sig (Elt Ideal)) : after (opsFrom18 (F := Ideal)) (val18 V0) = val512 V0 :=
  (after_opsFrom18 (val18 V0)).trans (after_opsFrom19_val V0)
theorem after_opsFrom17_val (V0 : Valuation τ sig (Elt Ideal)) : after (opsFrom17 (F := Ideal)) (val17 V0) = val512 V0 :=
  (after_opsFrom17 (val17 V0)).trans (after_opsFrom18_val V0)
theorem after_opsFrom16_val (V0 : Valuation τ sig (Elt Ideal)) : after (opsFrom16 (F := Ideal)) (val16 V0) = val512 V0 :=
  (after_opsFrom16 (val16 V0)).trans (after_opsFrom17_val V0)
theorem after_opsFrom15_val (V0 : Valuation τ sig (Elt Ideal)) : after (opsFrom15 (F := Ideal)) (val15 V0) = val512 V0 :=
  (after_opsFrom15 (val15 V0)).trans (after_opsFrom16_val V0)
theorem after_opsFrom14_val (V0 : Valuation τ sig (Elt Ideal)) : after (opsFrom14 (F := Ideal)) (val14 V0) = val512 V0 :=
  (after_opsFrom14 (val14 V0)).trans (after_opsFrom15_val V0)
theorem after_opsFrom13_val (V0 : Valuation τ sig (Elt Ideal)) : after (opsFrom13 (F := Ideal)) (val13 V0) = val512 V0 :=
  (after_opsFrom13 (val13 V0)).trans (after_opsFrom14_val V0)
theorem after_opsFrom12_val (V0 : Valuation τ sig (Elt Ideal)) : after (opsFrom12 (F := Ideal)) (val12 V0) = val512 V0 :=
  (after_opsFrom12 (val12 V0)).trans (after_opsFrom13_val V0)
theorem after_opsFrom11_val (V0 : Valuation τ sig (Elt Ideal)) : after (opsFrom11 (F := Ideal)) (val11 V0) = val512 V0 :=
  (after_opsFrom11 (val11 V0)).trans (after_opsFrom12_val V0)
theorem after_opsFrom10_val (V0 : Valuation τ sig (Elt Ideal)) : after (opsFrom10 (F := Ideal)) (val10 V0) = val512 V0 :=
  (after_opsFrom10 (val10 V0)).trans (after_opsFrom11_val V0)
theorem after_opsFrom9_val (V0 : Valuation τ sig (Elt Ideal)) : after (opsFrom9 (F := Ideal)) (val9 V0) = val512 V0 :=
  (after_opsFrom9 (val9 V0)).trans (after_opsFrom10_val V0)
theorem after_opsFrom8_val (V0 : Valuation τ sig (Elt Ideal)) : after (opsFrom8 (F := Ideal)) (val8 V0) = val512 V0 :=
  (after_opsFrom8 (val8 V0)).trans (after_opsFrom9_val V0)
theorem after_opsFrom7_val (V0 : Valuation τ sig (Elt Ideal)) : after (opsFrom7 (F := Ideal)) (val7 V0) = val512 V0 :=
  (after_opsFrom7 (val7 V0)).trans (after_opsFrom8_val V0)
theorem after_opsFrom6_val (V0 : Valuation τ sig (Elt Ideal)) : after (opsFrom6 (F := Ideal)) (val6 V0) = val512 V0 :=
  (after_opsFrom6 (val6 V0)).trans (after_opsFrom7_val V0)
theorem after_opsFrom5_val (V0 : Valuation τ sig (Elt Ideal)) : after (opsFrom5 (F := Ideal)) (val5 V0) = val512 V0 :=
  (after_opsFrom5 (val5 V0)).trans (after_opsFrom6_val V0)
theorem after_opsFrom4_val (V0 : Valuation τ sig (Elt Ideal)) : after (opsFrom4 (F := Ideal)) (val4 V0) = val512 V0 :=
  (after_opsFrom4 (val4 V0)).trans (after_opsFrom5_val V0)
theorem after_opsFrom3_val (V0 : Valuation τ sig (Elt Ideal)) : after (opsFrom3 (F := Ideal)) (val3 V0) = val512 V0 :=
  (after_opsFrom3 (val3 V0)).trans (after_opsFrom4_val V0)
theorem after_opsFrom2_val (V0 : Valuation τ sig (Elt Ideal)) : after (opsFrom2 (F := Ideal)) (val2 V0) = val512 V0 :=
  (after_opsFrom2 (val2 V0)).trans (after_opsFrom3_val V0)
theorem after_opsFrom1_val (V0 : Valuation τ sig (Elt Ideal)) : after (opsFrom1 (F := Ideal)) (val1 V0) = val512 V0 :=
  (after_opsFrom1 (val1 V0)).trans (after_opsFrom2_val V0)
theorem after_opsFrom0_val (V0 : Valuation τ sig (Elt Ideal)) : after (opsFrom0 (F := Ideal)) (val0 V0) = val512 V0 :=
  (after_opsFrom0 (val0 V0)).trans (after_opsFrom1_val V0)

end Cert.ReferenceIdeal.RefRun

end
-- ==== Proof.RefRun.lean ====
/-
  The reference program's run and its frame: every fair execution of the one-device reference ends, nothing
  faults, its four argument arrays end unchanged, and its result array ends at the 512th iterate of the loop's step.

  The run is the library's theorem for a straight line of host operations; the contents it ends with are followed step by
  step (the tables): no operation writes an argument, and each step takes the two carried buffers one step further.
-/
import proofs.«900482_g7700000000000483_dist_ssm_v7x_xy2x2_y_b4_s256_d256_n16_f32_1_alg».proof.Defs
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.Gen.Pre_finite_inputs_ReferenceIdeal
import proofs.«900482_g7700000000000483_dist_ssm_v7x_xy2x2_y_b4_s256_d256_n16_f32_1_alg».proof.Proof.RefRunSeq
import proofs.«900482_g7700000000000483_dist_ssm_v7x_xy2x2_y_b4_s256_d256_n16_f32_1_alg».proof.Proof.RefTableChain
import proofs.«900482_g7700000000000483_dist_ssm_v7x_xy2x2_y_b4_s256_d256_n16_f32_1_alg».proof.Proof.RefTableJoin

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

/-- The contents after the whole operation list are the contents after the last step. -/
theorem after_ops_val (V0 : Valuation τ sig (Elt Ideal)) : after (ops (F := Ideal)) V0 = val512 V0 :=
  (after_ops V0).trans (after_opsFrom0_val V0)

/-- Every fair execution of the reference ends with the result array at the 512th result iterate of the launch contents
    and the four arguments unchanged. -/
theorem run_val (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10243)
          = yJ (aX (launchContents m c)) (aA (launchContents m c)) (aB (launchContents m c)) (aC (launchContents m c)) 512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
      ⟨(h c main_v10243).trans (by rw [after_ops_val]; exact val512_y (launchContents m c)),
       (h c main_arg0).trans (by rw [after_ops_val]; exact val512_main_arg0 (launchContents m c)),
       (h c main_arg1).trans (by rw [after_ops_val]; exact val512_main_arg1 (launchContents m c)),
       (h c main_arg2).trans (by rw [after_ops_val]; exact val512_main_arg2 (launchContents m c)),
       (h c main_arg3).trans (by rw [after_ops_val]; exact val512_main_arg3 (launchContents m c))⟩)
    (run_after (F := Ideal) m ρ)

/-- The reference runs to the end from any memory and leaves its four arguments as they were. -/
theorem frame_ri : Cert.frame_ReferenceIdeal (hReferenceIdeal := Cert.ReferenceIdeal.Gen.facts)
    (hPre_finite_inputs_ReferenceIdeal := Cert.Pre_finite_inputs_ReferenceIdeal.Gen.facts) :=
  fun m g _ => (θ_run (Cert.ReferenceIdeal.defs (F := Ideal)) _ _).mono (fun _ h c => (h c).2) (run_val m g)

end Cert.ReferenceIdeal.RefRun

end
-- ==== Proof.RefValue.lean ====
/-
  The reference's value: the result array its run ends with is, index by index, the recurrence of the specification.

  The run ends with the result array at the 512th iterate of the loop's step from the zero arrays; the invariant of the
  iterate reads that as the specification. No finiteness is used: this is a structural reading of the program.
-/
import proofs.«900482_g7700000000000483_dist_ssm_v7x_xy2x2_y_b4_s256_d256_n16_f32_1_alg».proof.Defs
import proofs.«900482_g7700000000000483_dist_ssm_v7x_xy2x2_y_b4_s256_d256_n16_f32_1_alg».proof.Proof.RefRun

noncomputable section

namespace Cert.ReferenceIdeal.RefValue

open Idealize.ShloMosaic Idealize.ShloMosaic.TcCoe Idealize.SL.Sem Idealize.ShloMosaic.StableHlo Idealize.ShloMosaic.ValueIdx

/-- The run's term for the result: the 512th result iterate of the step, from device 0's launch contents. -/
def refOut (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v10243) :=
  yJ (aX (launchContents m' (0 : Dev Cert.ReferenceIdeal.nD))) (aA (launchContents m' (0 : Dev Cert.ReferenceIdeal.nD)))
    (aB (launchContents m' (0 : Dev Cert.ReferenceIdeal.nD))) (aC (launchContents m' (0 : Dev Cert.ReferenceIdeal.nD))) 512

/-- Every fair execution of the reference ends with the result at `refOut` and the arguments unchanged. -/
theorem run_value (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10243) = refOut m'
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)) :=
  (θ_run (Cert.ReferenceIdeal.defs (F := Ideal)) _ _).mono (fun _ h => h (0 : Dev Cert.ReferenceIdeal.nD))
    (Cert.ReferenceIdeal.RefRun.run_val m' g')

/-- The result at (b, t, d) is the specification's: the sum over the state index of the recurrence at time t times C. -/
theorem refOut_apply (m' : (ℓ : Loc Cert.ReferenceIdeal.nD Cert.ReferenceIdeal.τ Cert.ReferenceIdeal.sig) → Buf (Elt Ideal) ℓ)
    (b : Fin 4) (t : Fin 512) (d : Fin 256) :
    refOut m' (Idealize.ShloMosaic.ValueIdx.ix3 b t d)
      = Cert.Spec.yref (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) b t d :=
  yJ_final _ _ _ _ b t d

end Cert.ReferenceIdeal.RefValue

end
-- ==== Proof.lean ====
/-
  The five claims of this certificate, assembled.

  The kernel runs on four devices (a 2 × 2 mesh); every device scans its half of the 512-step sequence for two of the
  four batch rows: a doubling scan inside each chunk of sixteen steps, a doubling scan across the sixteen chunks,
  and the state entering the second half sent by the device that holds the first half. Its other two batch rows it
  receives from the device that shares its half of the sequence. The reference runs the 512 steps one after the other
  on one device. At the ideal instance both give, at batch row b, time t and channel d, the sum over the sixteen
  state indices of h(t) · C, where h follows h(t) = h(t-1) · exp A + x(t) · B(t) from h(-1) = 0: on finite inputs the
  doubling scans are that recurrence by the distributive law.

  * the two kernel frames: the kernel's run on all four devices (the protocol of its signals and copies, the body
    stepped once at a symbolic device), the result dropped;
  * the reference's frame: its run, the result dropped;
  * preserves: the idealization rewrote nothing;
  * algebraic: the kernel's run with every device's result named, the reference's run with its result named, and
    the bridge between the two names.
-/
import proofs.«900482_g7700000000000483_dist_ssm_v7x_xy2x2_y_b4_s256_d256_n16_f32_1_alg».proof.Defs
import proofs.«900482_g7700000000000483_dist_ssm_v7x_xy2x2_y_b4_s256_d256_n16_f32_1_alg».proof.Proof.Gen.Kernel
import proofs.«900482_g7700000000000483_dist_ssm_v7x_xy2x2_y_b4_s256_d256_n16_f32_1_alg».proof.Proof.Gen.KernelIdeal
import proofs.«900482_g7700000000000483_dist_ssm_v7x_xy2x2_y_b4_s256_d256_n16_f32_1_alg».proof.Proof.Gen.ReferenceIdeal
import proofs.«900482_g7700000000000483_dist_ssm_v7x_xy2x2_y_b4_s256_d256_n16_f32_1_alg».proof.Proof.Gen.Pre_finite_inputs_Kernel
import proofs.«900482_g7700000000000483_dist_ssm_v7x_xy2x2_y_b4_s256_d256_n16_f32_1_alg».proof.Proof.Gen.Pre_finite_inputs_ReferenceIdeal
import proofs.«900482_g7700000000000483_dist_ssm_v7x_xy2x2_y_b4_s256_d256_n16_f32_1_alg».proof.Proof.KAlg
import proofs.«900482_g7700000000000483_dist_ssm_v7x_xy2x2_y_b4_s256_d256_n16_f32_1_alg».proof.Proof.KBody
import proofs.«900482_g7700000000000483_dist_ssm_v7x_xy2x2_y_b4_s256_d256_n16_f32_1_alg».proof.Proof.KLaunchBits
import proofs.«900482_g7700000000000483_dist_ssm_v7x_xy2x2_y_b4_s256_d256_n16_f32_1_alg».proof.Proof.KBodyBits
import proofs.«900482_g7700000000000483_dist_ssm_v7x_xy2x2_y_b4_s256_d256_n16_f32_1_alg».proof.Proof.RefRun
import proofs.«900482_g7700000000000483_dist_ssm_v7x_xy2x2_y_b4_s256_d256_n16_f32_1_alg».proof.Proof.RefValue

noncomputable section

namespace Cert.Proof

open Idealize.ShloMosaic Idealize.ShloMosaic.TcCoe Idealize.SL.Sem

/-- The word-level kernel's frame: its run on the four devices, the result dropped. -/
theorem frame_p : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2)
    (Cert.Kernel.KLaunch.run_main m ρ (Cert.Kernel.KBody.sound_body m))

/-- The idealized kernel's frame. -/
theorem frame_pi : Cert.frame_KernelIdeal (hKernelIdeal := Cert.KernelIdeal.Gen.facts) (hPre_finite_inputs_Kernel := Cert.Pre_finite_inputs_Kernel.Gen.facts) :=
  Cert.KernelIdeal.KAlg.frame_pi fun m => Cert.KernelIdeal.KBody.sound_body m

/-- Both idealized programs end with equal results: every device's result buffer is its block of the reference's
    result, which is the recurrence's. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) := by
  intro m g m' g' hpre hagree
  refine ⟨Cert.ReferenceIdeal.RefValue.refOut m', ?_, Cert.ReferenceIdeal.RefValue.run_value m' g'⟩
  exact Cert.KernelIdeal.KAlg.run_block (fun m => Cert.KernelIdeal.KBody.sound_body m) m g _ _ _ _ hpre
    (fun c => (hagree c).1) (fun c => (hagree c).2.1) (fun c => (hagree c).2.2.1) (fun c => (hagree c).2.2.2)
    (Cert.ReferenceIdeal.RefValue.refOut m') (Cert.ReferenceIdeal.RefValue.refOut_apply m')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_p, frame_pi, Cert.ReferenceIdeal.RefRun.frame_ri, trivial, algebraic⟩

end Cert.Proof

end
